-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v23)) (v1 : (c : Dev Cert.KernelIdeal.nD) → Buf (Elt Ideal) ((c.tc : Thread Cert.KernelIdeal.nD Cert.KernelIdeal.τ).loc Cert.KernelIdeal.main_v24)) (v2 : (c : Dev Cert.KernelIdeal.nD) → Buf (Elt Ideal) ((c.tc : Thread Cert.KernelIdeal.nD Cert.KernelIdeal.τ).loc Cert.KernelIdeal.main_v25)) (v3 : (c : Dev Cert.KernelIdeal.nD) → Buf (Elt Ideal) ((c.tc : Thread Cert.KernelIdeal.nD Cert.KernelIdeal.τ).loc Cert.KernelIdeal.main_v26)) (v4 : (c : Dev Cert.KernelIdeal.nD) → Buf (Elt Ideal) ((c.tc : Thread Cert.KernelIdeal.nD Cert.KernelIdeal.τ).loc Cert.KernelIdeal.main_v27)) (v5 : (c : Dev Cert.KernelIdeal.nD) → Buf (Elt Ideal) ((c.tc : Thread Cert.KernelIdeal.nD Cert.KernelIdeal.τ).loc Cert.KernelIdeal.main_v28)) (v6 : (c : Dev Cert.KernelIdeal.nD) → Buf (Elt Ideal) ((c.tc : Thread Cert.KernelIdeal.nD Cert.KernelIdeal.τ).loc Cert.KernelIdeal.main_v29)) (v7 : (c : Dev Cert.KernelIdeal.nD) → Buf (Elt Ideal) ((c.tc : Thread Cert.KernelIdeal.nD Cert.KernelIdeal.τ).loc Cert.KernelIdeal.main_v30)) (v8 : (c : Dev Cert.KernelIdeal.nD) → Buf (Elt Ideal) ((c.tc : Thread Cert.KernelIdeal.nD Cert.KernelIdeal.τ).loc Cert.KernelIdeal.main_v31)) (v9 : (c : Dev Cert.KernelIdeal.nD) → Buf (Elt Ideal) ((c.tc : Thread Cert.KernelIdeal.nD Cert.KernelIdeal.τ).loc Cert.KernelIdeal.main_v32)) (v10 : (c : Dev Cert.KernelIdeal.nD) → Buf (Elt Ideal) ((c.tc : Thread Cert.KernelIdeal.nD Cert.KernelIdeal.τ).loc Cert.KernelIdeal.main_v33)) (v11 : (c : Dev Cert.KernelIdeal.nD) → Buf (Elt Ideal) ((c.tc : Thread Cert.KernelIdeal.nD Cert.KernelIdeal.τ).loc Cert.KernelIdeal.main_v34)) (v12 : (c : Dev Cert.KernelIdeal.nD) → Buf (Elt Ideal) ((c.tc : Thread Cert.KernelIdeal.nD Cert.KernelIdeal.τ).loc Cert.KernelIdeal.main_v35)) (v13 : (c : Dev Cert.KernelIdeal.nD) → Buf (Elt Ideal) ((c.tc : Thread Cert.KernelIdeal.nD Cert.KernelIdeal.τ).loc Cert.KernelIdeal.main_v36)) (v14 : (c : Dev Cert.KernelIdeal.nD) → Buf (Elt Ideal) ((c.tc : Thread Cert.KernelIdeal.nD Cert.KernelIdeal.τ).loc Cert.KernelIdeal.main_v37)) (v15 : (c : Dev Cert.KernelIdeal.nD) → Buf (Elt Ideal) ((c.tc : Thread Cert.KernelIdeal.nD Cert.KernelIdeal.τ).loc Cert.KernelIdeal.main_v38)) (v16 : (c : Dev Cert.KernelIdeal.nD) → Buf (Elt Ideal) ((c.tc : Thread Cert.KernelIdeal.nD Cert.KernelIdeal.τ).loc Cert.KernelIdeal.main_v39)) (v17 : (c : Dev Cert.KernelIdeal.nD) → Buf (Elt Ideal) ((c.tc : Thread Cert.KernelIdeal.nD Cert.KernelIdeal.τ).loc Cert.KernelIdeal.main_v40)) (v18 : (c : Dev Cert.KernelIdeal.nD) → Buf (Elt Ideal) ((c.tc : Thread Cert.KernelIdeal.nD Cert.KernelIdeal.τ).loc Cert.KernelIdeal.main_v41)) (v19 : (c : Dev Cert.KernelIdeal.nD) → Buf (Elt Ideal) ((c.tc : Thread Cert.KernelIdeal.nD Cert.KernelIdeal.τ).loc Cert.KernelIdeal.main_v42)) (v20 : (c : Dev Cert.KernelIdeal.nD) → Buf (Elt Ideal) ((c.tc : Thread Cert.KernelIdeal.nD Cert.KernelIdeal.τ).loc Cert.KernelIdeal.main_v43)) (v21 : (c : Dev Cert.KernelIdeal.nD) → Buf (Elt Ideal) ((c.tc : Thread Cert.KernelIdeal.nD Cert.KernelIdeal.τ).loc Cert.KernelIdeal.main_v44)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_v24) = v1 c
          ∧ r.2.mem ((c.tc : Thread Cert.KernelIdeal.nD Cert.KernelIdeal.τ).loc Cert.KernelIdeal.main_v25) = v2 c
          ∧ r.2.mem ((c.tc : Thread Cert.KernelIdeal.nD Cert.KernelIdeal.τ).loc Cert.KernelIdeal.main_v26) = v3 c
          ∧ r.2.mem ((c.tc : Thread Cert.KernelIdeal.nD Cert.KernelIdeal.τ).loc Cert.KernelIdeal.main_v27) = v4 c
          ∧ r.2.mem ((c.tc : Thread Cert.KernelIdeal.nD Cert.KernelIdeal.τ).loc Cert.KernelIdeal.main_v28) = v5 c
          ∧ r.2.mem ((c.tc : Thread Cert.KernelIdeal.nD Cert.KernelIdeal.τ).loc Cert.KernelIdeal.main_v29) = v6 c
          ∧ r.2.mem ((c.tc : Thread Cert.KernelIdeal.nD Cert.KernelIdeal.τ).loc Cert.KernelIdeal.main_v30) = v7 c
          ∧ r.2.mem ((c.tc : Thread Cert.KernelIdeal.nD Cert.KernelIdeal.τ).loc Cert.KernelIdeal.main_v31) = v8 c
          ∧ r.2.mem ((c.tc : Thread Cert.KernelIdeal.nD Cert.KernelIdeal.τ).loc Cert.KernelIdeal.main_v32) = v9 c
          ∧ r.2.mem ((c.tc : Thread Cert.KernelIdeal.nD Cert.KernelIdeal.τ).loc Cert.KernelIdeal.main_v33) = v10 c
          ∧ r.2.mem ((c.tc : Thread Cert.KernelIdeal.nD Cert.KernelIdeal.τ).loc Cert.KernelIdeal.main_v34) = v11 c
          ∧ r.2.mem ((c.tc : Thread Cert.KernelIdeal.nD Cert.KernelIdeal.τ).loc Cert.KernelIdeal.main_v35) = v12 c
          ∧ r.2.mem ((c.tc : Thread Cert.KernelIdeal.nD Cert.KernelIdeal.τ).loc Cert.KernelIdeal.main_v36) = v13 c
          ∧ r.2.mem ((c.tc : Thread Cert.KernelIdeal.nD Cert.KernelIdeal.τ).loc Cert.KernelIdeal.main_v37) = v14 c
          ∧ r.2.mem ((c.tc : Thread Cert.KernelIdeal.nD Cert.KernelIdeal.τ).loc Cert.KernelIdeal.main_v38) = v15 c
          ∧ r.2.mem ((c.tc : Thread Cert.KernelIdeal.nD Cert.KernelIdeal.τ).loc Cert.KernelIdeal.main_v39) = v16 c
          ∧ r.2.mem ((c.tc : Thread Cert.KernelIdeal.nD Cert.KernelIdeal.τ).loc Cert.KernelIdeal.main_v40) = v17 c
          ∧ r.2.mem ((c.tc : Thread Cert.KernelIdeal.nD Cert.KernelIdeal.τ).loc Cert.KernelIdeal.main_v41) = v18 c
          ∧ r.2.mem ((c.tc : Thread Cert.KernelIdeal.nD Cert.KernelIdeal.τ).loc Cert.KernelIdeal.main_v42) = v19 c
          ∧ r.2.mem ((c.tc : Thread Cert.KernelIdeal.nD Cert.KernelIdeal.τ).loc Cert.KernelIdeal.main_v43) = v20 c
          ∧ r.2.mem ((c.tc : Thread Cert.KernelIdeal.nD Cert.KernelIdeal.τ).loc Cert.KernelIdeal.main_v44) = v21 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_v1) = v1 c
          ∧ r.2.mem ((c.tc : Thread Cert.ReferenceIdeal.nD Cert.ReferenceIdeal.τ).loc Cert.ReferenceIdeal.main_v2) = v2 c
          ∧ r.2.mem ((c.tc : Thread Cert.ReferenceIdeal.nD Cert.ReferenceIdeal.τ).loc Cert.ReferenceIdeal.main_v3) = v3 c
          ∧ r.2.mem ((c.tc : Thread Cert.ReferenceIdeal.nD Cert.ReferenceIdeal.τ).loc Cert.ReferenceIdeal.main_v4) = v4 c
          ∧ r.2.mem ((c.tc : Thread Cert.ReferenceIdeal.nD Cert.ReferenceIdeal.τ).loc Cert.ReferenceIdeal.main_v5) = v5 c
          ∧ r.2.mem ((c.tc : Thread Cert.ReferenceIdeal.nD Cert.ReferenceIdeal.τ).loc Cert.ReferenceIdeal.main_v6) = v6 c
          ∧ r.2.mem ((c.tc : Thread Cert.ReferenceIdeal.nD Cert.ReferenceIdeal.τ).loc Cert.ReferenceIdeal.main_v7) = v7 c
          ∧ r.2.mem ((c.tc : Thread Cert.ReferenceIdeal.nD Cert.ReferenceIdeal.τ).loc Cert.ReferenceIdeal.main_v8) = v8 c
          ∧ r.2.mem ((c.tc : Thread Cert.ReferenceIdeal.nD Cert.ReferenceIdeal.τ).loc Cert.ReferenceIdeal.main_v9) = v9 c
          ∧ r.2.mem ((c.tc : Thread Cert.ReferenceIdeal.nD Cert.ReferenceIdeal.τ).loc Cert.ReferenceIdeal.main_v10) = v10 c
          ∧ r.2.mem ((c.tc : Thread Cert.ReferenceIdeal.nD Cert.ReferenceIdeal.τ).loc Cert.ReferenceIdeal.main_v11) = v11 c
          ∧ r.2.mem ((c.tc : Thread Cert.ReferenceIdeal.nD Cert.ReferenceIdeal.τ).loc Cert.ReferenceIdeal.main_v12) = v12 c
          ∧ r.2.mem ((c.tc : Thread Cert.ReferenceIdeal.nD Cert.ReferenceIdeal.τ).loc Cert.ReferenceIdeal.main_v13) = v13 c
          ∧ r.2.mem ((c.tc : Thread Cert.ReferenceIdeal.nD Cert.ReferenceIdeal.τ).loc Cert.ReferenceIdeal.main_v14) = v14 c
          ∧ r.2.mem ((c.tc : Thread Cert.ReferenceIdeal.nD Cert.ReferenceIdeal.τ).loc Cert.ReferenceIdeal.main_v15) = v15 c
          ∧ r.2.mem ((c.tc : Thread Cert.ReferenceIdeal.nD Cert.ReferenceIdeal.τ).loc Cert.ReferenceIdeal.main_v16) = v16 c
          ∧ r.2.mem ((c.tc : Thread Cert.ReferenceIdeal.nD Cert.ReferenceIdeal.τ).loc Cert.ReferenceIdeal.main_v17) = v17 c
          ∧ r.2.mem ((c.tc : Thread Cert.ReferenceIdeal.nD Cert.ReferenceIdeal.τ).loc Cert.ReferenceIdeal.main_v18) = v18 c
          ∧ r.2.mem ((c.tc : Thread Cert.ReferenceIdeal.nD Cert.ReferenceIdeal.τ).loc Cert.ReferenceIdeal.main_v19) = v19 c
          ∧ r.2.mem ((c.tc : Thread Cert.ReferenceIdeal.nD Cert.ReferenceIdeal.τ).loc Cert.ReferenceIdeal.main_v20) = v20 c
          ∧ r.2.mem ((c.tc : Thread Cert.ReferenceIdeal.nD Cert.ReferenceIdeal.τ).loc Cert.ReferenceIdeal.main_v21) = v21 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1600000x22 : Shape := ⟨2, ![1600000, 22]⟩
abbrev S_ : Shape := ⟨0, ![]⟩

class Facts : Prop where
  bcast_S_S1600000x22 : S_.BroadcastsInDim S1600000x22 (![] : Fin 0 → Fin S1600000x22.rank)
  reducesTo_S1600000x22_S_d0_1 : S1600000x22.ReducesTo [0, 1] S_
  h_S_ : 0 < S_.numel

variable [Facts]

def fn {F : FTy → Type} [FloatOps F] (main_arg0 : FVec F S1600000x22 .f32) : IVec S_ 1 :=
  let main_v0 : FVec F S1600000x22 .f32 := Host.absf main_arg0
  let main_cst : FVec F S_ .f32 := constant S_ .f32 0x7F800000#32
  let main_v1 : FVec F S1600000x22 .f32 := broadcastInDim S1600000x22 ![] bcast_S_S1600000x22 main_cst
  let main_v2 : IVec S1600000x22 1 := cmpf .olt main_v0 main_v1
  let main_c : IVec S_ 1 := constantI S_ 1 1#1
  let main_v3 : IVec S_ 1 := (fun x v => Host.reduce IntOp.andi x v reducesTo_S1600000x22_S_d0_1 h_S_) main_v2 main_c
  main_v3
-- ==== Kernel.lean ====
abbrev S1600000x22 : Shape := ⟨2, ![1600000, 22]⟩
abbrev S22x1600000 : Shape := ⟨2, ![22, 1600000]⟩
abbrev S1600000 : Shape := ⟨1, ![1600000]⟩
abbrev S8x3200 : Shape := ⟨2, ![8, 3200]⟩
abbrev S25600 : Shape := ⟨1, ![25600]⟩
abbrev S_ : Shape := ⟨0, ![]⟩
abbrev S1x3200 : Shape := ⟨2, ![1, 3200]⟩
abbrev S3200 : Shape := ⟨1, ![3200]⟩
abbrev S16 : Shape := ⟨1, ![16]⟩
abbrev S1x16 : Shape := ⟨2, ![1, 16]⟩
abbrev S1600000x1 : Shape := ⟨2, ![1600000, 1]⟩

abbrev nBuf : Table → Nat
  | .hbm => 46
  | .local .scVector .vmem => 88
  | _ => 0

abbrev bufTy : (tb : Table) → Fin (nBuf tb) → BufTy
  | .hbm, ⟨0, _⟩ => ⟨S1600000x22, .f32⟩
  | .hbm, ⟨1, _⟩ => ⟨S22x1600000, .f32⟩
  | .hbm, ⟨2, _⟩ => ⟨S1600000, .f32⟩
  | .hbm, ⟨3, _⟩ => ⟨S1600000, .f32⟩
  | .hbm, ⟨4, _⟩ => ⟨S1600000, .f32⟩
  | .hbm, ⟨5, _⟩ => ⟨S1600000, .f32⟩
  | .hbm, ⟨6, _⟩ => ⟨S1600000, .f32⟩
  | .hbm, ⟨7, _⟩ => ⟨S1600000, .f32⟩
  | .hbm, ⟨8, _⟩ => ⟨S1600000, .f32⟩
  | .hbm, ⟨9, _⟩ => ⟨S1600000, .f32⟩
  | .hbm, ⟨10, _⟩ => ⟨S1600000, .f32⟩
  | .hbm, ⟨11, _⟩ => ⟨S1600000, .f32⟩
  | .hbm, ⟨12, _⟩ => ⟨S1600000, .f32⟩
  | .hbm, ⟨13, _⟩ => ⟨S1600000, .f32⟩
  | .hbm, ⟨14, _⟩ => ⟨S1600000, .f32⟩
  | .hbm, ⟨15, _⟩ => ⟨S1600000, .f32⟩
  | .hbm, ⟨16, _⟩ => ⟨S1600000, .f32⟩
  | .hbm, ⟨17, _⟩ => ⟨S1600000, .f32⟩
  | .hbm, ⟨18, _⟩ => ⟨S1600000, .f32⟩
  | .hbm, ⟨19, _⟩ => ⟨S1600000, .f32⟩
  | .hbm, ⟨20, _⟩ => ⟨S1600000, .f32⟩
  | .hbm, ⟨21, _⟩ => ⟨S1600000, .f32⟩
  | .hbm, ⟨22, _⟩ => ⟨S1600000, .f32⟩
  | .hbm, ⟨23, _⟩ => ⟨S1600000, .f32⟩
  | .hbm, ⟨24, _⟩ => ⟨S1600000x1, .f32⟩
  | .hbm, ⟨25, _⟩ => ⟨S1600000x1, .f32⟩
  | .hbm, ⟨26, _⟩ => ⟨S1600000x1, .f32⟩
  | .hbm, ⟨27, _⟩ => ⟨S1600000x1, .f32⟩
  | .hbm, ⟨28, _⟩ => ⟨S1600000x1, .f32⟩
  | .hbm, ⟨29, _⟩ => ⟨S1600000x1, .f32⟩
  | .hbm, ⟨30, _⟩ => ⟨S1600000x1, .f32⟩
  | .hbm, ⟨31, _⟩ => ⟨S1600000x1, .f32⟩
  | .hbm, ⟨32, _⟩ => ⟨S1600000x1, .f32⟩
  | .hbm, ⟨33, _⟩ => ⟨S1600000x1, .f32⟩
  | .hbm, ⟨34, _⟩ => ⟨S1600000x1, .f32⟩
  | .hbm, ⟨35, _⟩ => ⟨S1600000x1, .f32⟩
  | .hbm, ⟨36, _⟩ => ⟨S1600000x1, .f32⟩
  | .hbm, ⟨37, _⟩ => ⟨S1600000x1, .f32⟩
  | .hbm, ⟨38, _⟩ => ⟨S1600000x1, .f32⟩
  | .hbm, ⟨39, _⟩ => ⟨S1600000x1, .f32⟩
  | .hbm, ⟨40, _⟩ => ⟨S1600000x1, .f32⟩
  | .hbm, ⟨41, _⟩ => ⟨S1600000x1, .f32⟩
  | .hbm, ⟨42, _⟩ => ⟨S1600000x1, .f32⟩
  | .hbm, ⟨43, _⟩ => ⟨S1600000x1, .f32⟩
  | .hbm, ⟨44, _⟩ => ⟨S1600000x1, .f32⟩
  | .hbm, ⟨45, _⟩ => ⟨S1600000x1, .f32⟩
  | .local .scVector .vmem, ⟨0, _⟩ => ⟨S8x3200, .f32⟩
  | .local .scVector .vmem, ⟨1, _⟩ => ⟨S8x3200, .f32⟩
  | .local .scVector .vmem, ⟨2, _⟩ => ⟨S25600, .f32⟩
  | .local .scVector .vmem, ⟨3, _⟩ => ⟨S25600, .f32⟩
  | .local .scVector .vmem, ⟨4, _⟩ => ⟨S8x3200, .f32⟩
  | .local .scVector .vmem, ⟨5, _⟩ => ⟨S8x3200, .f32⟩
  | .local .scVector .vmem, ⟨6, _⟩ => ⟨S25600, .f32⟩
  | .local .scVector .vmem, ⟨7, _⟩ => ⟨S25600, .f32⟩
  | .local .scVector .vmem, ⟨8, _⟩ => ⟨S8x3200, .f32⟩
  | .local .scVector .vmem, ⟨9, _⟩ => ⟨S8x3200, .f32⟩
  | .local .scVector .vmem, ⟨10, _⟩ => ⟨S25600, .f32⟩
  | .local .scVector .vmem, ⟨11, _⟩ => ⟨S25600, .f32⟩
  | .local .scVector .vmem, ⟨12, _⟩ => ⟨S8x3200, .f32⟩
  | .local .scVector .vmem, ⟨13, _⟩ => ⟨S8x3200, .f32⟩
  | .local .scVector .vmem, ⟨14, _⟩ => ⟨S25600, .f32⟩
  | .local .scVector .vmem, ⟨15, _⟩ => ⟨S25600, .f32⟩
  | .local .scVector .vmem, ⟨16, _⟩ => ⟨S8x3200, .f32⟩
  | .local .scVector .vmem, ⟨17, _⟩ => ⟨S8x3200, .f32⟩
  | .local .scVector .vmem, ⟨18, _⟩ => ⟨S25600, .f32⟩
  | .local .scVector .vmem, ⟨19, _⟩ => ⟨S25600, .f32⟩
  | .local .scVector .vmem, ⟨20, _⟩ => ⟨S8x3200, .f32⟩
  | .local .scVector .vmem, ⟨21, _⟩ => ⟨S8x3200, .f32⟩
  | .local .scVector .vmem, ⟨22, _⟩ => ⟨S25600, .f32⟩
  | .local .scVector .vmem, ⟨23, _⟩ => ⟨S25600, .f32⟩
  | .local .scVector .vmem, ⟨24, _⟩ => ⟨S8x3200, .f32⟩
  | .local .scVector .vmem, ⟨25, _⟩ => ⟨S8x3200, .f32⟩
  | .local .scVector .vmem, ⟨26, _⟩ => ⟨S25600, .f32⟩
  | .local .scVector .vmem, ⟨27, _⟩ => ⟨S25600, .f32⟩
  | .local .scVector .vmem, ⟨28, _⟩ => ⟨S8x3200, .f32⟩
  | .local .scVector .vmem, ⟨29, _⟩ => ⟨S8x3200, .f32⟩
  | .local .scVector .vmem, ⟨30, _⟩ => ⟨S25600, .f32⟩
  | .local .scVector .vmem, ⟨31, _⟩ => ⟨S25600, .f32⟩
  | .local .scVector .vmem, ⟨32, _⟩ => ⟨S8x3200, .f32⟩
  | .local .scVector .vmem, ⟨33, _⟩ => ⟨S8x3200, .f32⟩
  | .local .scVector .vmem, ⟨34, _⟩ => ⟨S25600, .f32⟩
  | .local .scVector .vmem, ⟨35, _⟩ => ⟨S25600, .f32⟩
  | .local .scVector .vmem, ⟨36, _⟩ => ⟨S8x3200, .f32⟩
  | .local .scVector .vmem, ⟨37, _⟩ => ⟨S8x3200, .f32⟩
  | .local .scVector .vmem, ⟨38, _⟩ => ⟨S25600, .f32⟩
  | .local .scVector .vmem, ⟨39, _⟩ => ⟨S25600, .f32⟩
  | .local .scVector .vmem, ⟨40, _⟩ => ⟨S8x3200, .f32⟩
  | .local .scVector .vmem, ⟨41, _⟩ => ⟨S8x3200, .f32⟩
  | .local .scVector .vmem, ⟨42, _⟩ => ⟨S25600, .f32⟩
  | .local .scVector .vmem, ⟨43, _⟩ => ⟨S25600, .f32⟩
  | .local .scVector .vmem, ⟨44, _⟩ => ⟨S8x3200, .f32⟩
  | .local .scVector .vmem, ⟨45, _⟩ => ⟨S8x3200, .f32⟩
  | .local .scVector .vmem, ⟨46, _⟩ => ⟨S25600, .f32⟩
  | .local .scVector .vmem, ⟨47, _⟩ => ⟨S25600, .f32⟩
  | .local .scVector .vmem, ⟨48, _⟩ => ⟨S8x3200, .f32⟩
  | .local .scVector .vmem, ⟨49, _⟩ => ⟨S8x3200, .f32⟩
  | .local .scVector .vmem, ⟨50, _⟩ => ⟨S25600, .f32⟩
  | .local .scVector .vmem, ⟨51, _⟩ => ⟨S25600, .f32⟩
  | .local .scVector .vmem, ⟨52, _⟩ => ⟨S8x3200, .f32⟩
  | .local .scVector .vmem, ⟨53, _⟩ => ⟨S8x3200, .f32⟩
  | .local .scVector .vmem, ⟨54, _⟩ => ⟨S25600, .f32⟩
  | .local .scVector .vmem, ⟨55, _⟩ => ⟨S25600, .f32⟩
  | .local .scVector .vmem, ⟨56, _⟩ => ⟨S8x3200, .f32⟩
  | .local .scVector .vmem, ⟨57, _⟩ => ⟨S8x3200, .f32⟩
  | .local .scVector .vmem, ⟨58, _⟩ => ⟨S25600, .f32⟩
  | .local .scVector .vmem, ⟨59, _⟩ => ⟨S25600, .f32⟩
  | .local .scVector .vmem, ⟨60, _⟩ => ⟨S8x3200, .f32⟩
  | .local .scVector .vmem, ⟨61, _⟩ => ⟨S8x3200, .f32⟩
  | .local .scVector .vmem, ⟨62, _⟩ => ⟨S25600, .f32⟩
  | .local .scVector .vmem, ⟨63, _⟩ => ⟨S25600, .f32⟩
  | .local .scVector .vmem, ⟨64, _⟩ => ⟨S8x3200, .f32⟩
  | .local .scVector .vmem, ⟨65, _⟩ => ⟨S8x3200, .f32⟩
  | .local .scVector .vmem, ⟨66, _⟩ => ⟨S25600, .f32⟩
  | .local .scVector .vmem, ⟨67, _⟩ => ⟨S25600, .f32⟩
  | .local .scVector .vmem, ⟨68, _⟩ => ⟨S8x3200, .f32⟩
  | .local .scVector .vmem, ⟨69, _⟩ => ⟨S8x3200, .f32⟩
  | .local .scVector .vmem, ⟨70, _⟩ => ⟨S25600, .f32⟩
  | .local .scVector .vmem, ⟨71, _⟩ => ⟨S25600, .f32⟩
  | .local .scVector .vmem, ⟨72, _⟩ => ⟨S8x3200, .f32⟩
  | .local .scVector .vmem, ⟨73, _⟩ => ⟨S8x3200, .f32⟩
  | .local .scVector .vmem, ⟨74, _⟩ => ⟨S25600, .f32⟩
  | .local .scVector .vmem, ⟨75, _⟩ => ⟨S25600, .f32⟩
  | .local .scVector .vmem, ⟨76, _⟩ => ⟨S8x3200, .f32⟩
  | .local .scVector .vmem, ⟨77, _⟩ => ⟨S8x3200, .f32⟩
  | .local .scVector .vmem, ⟨78, _⟩ => ⟨S25600, .f32⟩
  | .local .scVector .vmem, ⟨79, _⟩ => ⟨S25600, .f32⟩
  | .local .scVector .vmem, ⟨80, _⟩ => ⟨S8x3200, .f32⟩
  | .local .scVector .vmem, ⟨81, _⟩ => ⟨S8x3200, .f32⟩
  | .local .scVector .vmem, ⟨82, _⟩ => ⟨S25600, .f32⟩
  | .local .scVector .vmem, ⟨83, _⟩ => ⟨S25600, .f32⟩
  | .local .scVector .vmem, ⟨84, _⟩ => ⟨S8x3200, .f32⟩
  | .local .scVector .vmem, ⟨85, _⟩ => ⟨S8x3200, .f32⟩
  | .local .scVector .vmem, ⟨86, _⟩ => ⟨S25600, .f32⟩
  | .local .scVector .vmem, ⟨87, _⟩ => ⟨S25600, .f32⟩
  | _, _ => ⟨S1600000x22, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 88 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | ⟨12, _⟩ => false
  | ⟨13, _⟩ => false
  | ⟨14, _⟩ => false
  | ⟨15, _⟩ => false
  | ⟨16, _⟩ => false
  | ⟨17, _⟩ => false
  | ⟨18, _⟩ => false
  | ⟨19, _⟩ => false
  | ⟨20, _⟩ => false
  | ⟨21, _⟩ => false
  | ⟨22, _⟩ => false
  | ⟨23, _⟩ => false
  | ⟨24, _⟩ => false
  | ⟨25, _⟩ => false
  | ⟨26, _⟩ => false
  | ⟨27, _⟩ => false
  | ⟨28, _⟩ => false
  | ⟨29, _⟩ => false
  | ⟨30, _⟩ => false
  | ⟨31, _⟩ => false
  | ⟨32, _⟩ => false
  | ⟨33, _⟩ => false
  | ⟨34, _⟩ => false
  | ⟨35, _⟩ => false
  | ⟨36, _⟩ => false
  | ⟨37, _⟩ => false
  | ⟨38, _⟩ => false
  | ⟨39, _⟩ => false
  | ⟨40, _⟩ => false
  | ⟨41, _⟩ => false
  | ⟨42, _⟩ => false
  | ⟨43, _⟩ => false
  | ⟨44, _⟩ => false
  | ⟨45, _⟩ => false
  | ⟨46, _⟩ => false
  | ⟨47, _⟩ => false
  | ⟨48, _⟩ => false
  | ⟨49, _⟩ => false
  | ⟨50, _⟩ => false
  | ⟨51, _⟩ => false
  | ⟨52, _⟩ => false
  | ⟨53, _⟩ => false
  | ⟨54, _⟩ => false
  | ⟨55, _⟩ => false
  | ⟨56, _⟩ => false
  | ⟨57, _⟩ => false
  | ⟨58, _⟩ => false
  | ⟨59, _⟩ => false
  | ⟨60, _⟩ => false
  | ⟨61, _⟩ => false
  | ⟨62, _⟩ => false
  | ⟨63, _⟩ => false
  | ⟨64, _⟩ => false
  | ⟨65, _⟩ => false
  | ⟨66, _⟩ => false
  | ⟨67, _⟩ => false
  | ⟨68, _⟩ => false
  | ⟨69, _⟩ => false
  | ⟨70, _⟩ => false
  | ⟨71, _⟩ => false
  | ⟨72, _⟩ => false
  | ⟨73, _⟩ => false
  | ⟨74, _⟩ => false
  | ⟨75, _⟩ => false
  | ⟨76, _⟩ => false
  | ⟨77, _⟩ => false
  | ⟨78, _⟩ => false
  | ⟨79, _⟩ => false
  | ⟨80, _⟩ => false
  | ⟨81, _⟩ => false
  | ⟨82, _⟩ => false
  | ⟨83, _⟩ => false
  | ⟨84, _⟩ => false
  | ⟨85, _⟩ => false
  | ⟨86, _⟩ => false
  | ⟨87, _⟩ => false
  | _ => false

abbrev sig : RefSig :=
  ofTables nBuf rfl bufTy 4 88 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_v10 : Ref sig .tc := ⟨.hbm, 11, rfl⟩
abbrev main_v11 : Ref sig .tc := ⟨.hbm, 12, rfl⟩
abbrev main_v12 : Ref sig .tc := ⟨.hbm, 13, rfl⟩
abbrev main_v13 : Ref sig .tc := ⟨.hbm, 14, rfl⟩
abbrev main_v14 : Ref sig .tc := ⟨.hbm, 15, rfl⟩
abbrev main_v15 : Ref sig .tc := ⟨.hbm, 16, rfl⟩
abbrev main_v16 : Ref sig .tc := ⟨.hbm, 17, rfl⟩
abbrev main_v17 : Ref sig .tc := ⟨.hbm, 18, rfl⟩
abbrev main_v18 : Ref sig .tc := ⟨.hbm, 19, rfl⟩
abbrev main_v19 : Ref sig .tc := ⟨.hbm, 20, rfl⟩
abbrev main_v20 : Ref sig .tc := ⟨.hbm, 21, rfl⟩
abbrev main_v21 : Ref sig .tc := ⟨.hbm, 22, rfl⟩
abbrev main_v22 : Ref sig .tc := ⟨.hbm, 23, rfl⟩
abbrev main_v23 : Ref sig .tc := ⟨.hbm, 24, rfl⟩
abbrev main_v24 : Ref sig .tc := ⟨.hbm, 25, rfl⟩
abbrev main_v25 : Ref sig .tc := ⟨.hbm, 26, rfl⟩
abbrev main_v26 : Ref sig .tc := ⟨.hbm, 27, rfl⟩
abbrev main_v27 : Ref sig .tc := ⟨.hbm, 28, rfl⟩
abbrev main_v28 : Ref sig .tc := ⟨.hbm, 29, rfl⟩
abbrev main_v29 : Ref sig .tc := ⟨.hbm, 30, rfl⟩
abbrev main_v30 : Ref sig .tc := ⟨.hbm, 31, rfl⟩
abbrev main_v31 : Ref sig .tc := ⟨.hbm, 32, rfl⟩
abbrev main_v32 : Ref sig .tc := ⟨.hbm, 33, rfl⟩
abbrev main_v33 : Ref sig .tc := ⟨.hbm, 34, rfl⟩
abbrev main_v34 : Ref sig .tc := ⟨.hbm, 35, rfl⟩
abbrev main_v35 : Ref sig .tc := ⟨.hbm, 36, rfl⟩
abbrev main_v36 : Ref sig .tc := ⟨.hbm, 37, rfl⟩
abbrev main_v37 : Ref sig .tc := ⟨.hbm, 38, rfl⟩
abbrev main_v38 : Ref sig .tc := ⟨.hbm, 39, rfl⟩
abbrev main_v39 : Ref sig .tc := ⟨.hbm, 40, rfl⟩
abbrev main_v40 : Ref sig .tc := ⟨.hbm, 41, rfl⟩
abbrev main_v41 : Ref sig .tc := ⟨.hbm, 42, rfl⟩
abbrev main_v42 : Ref sig .tc := ⟨.hbm, 43, rfl⟩
abbrev main_v43 : Ref sig .tc := ⟨.hbm, 44, rfl⟩
abbrev main_v44 : Ref sig .tc := ⟨.hbm, 45, rfl⟩
abbrev main_v0_scv : Ref sig .scVector := ⟨.hbm, 1, rfl⟩
abbrev main_v1_scv : Ref sig .scVector := ⟨.hbm, 2, rfl⟩
abbrev main_v2_scv : Ref sig .scVector := ⟨.hbm, 3, rfl⟩
abbrev main_v3_scv : Ref sig .scVector := ⟨.hbm, 4, rfl⟩
abbrev main_v4_scv : Ref sig .scVector := ⟨.hbm, 5, rfl⟩
abbrev main_v5_scv : Ref sig .scVector := ⟨.hbm, 6, rfl⟩
abbrev main_v6_scv : Ref sig .scVector := ⟨.hbm, 7, rfl⟩
abbrev main_v7_scv : Ref sig .scVector := ⟨.hbm, 8, rfl⟩
abbrev main_v8_scv : Ref sig .scVector := ⟨.hbm, 9, rfl⟩
abbrev main_v9_scv : Ref sig .scVector := ⟨.hbm, 10, rfl⟩
abbrev main_v10_scv : Ref sig .scVector := ⟨.hbm, 11, rfl⟩
abbrev main_v11_scv : Ref sig .scVector := ⟨.hbm, 12, rfl⟩
abbrev main_v12_scv : Ref sig .scVector := ⟨.hbm, 13, rfl⟩
abbrev main_v13_scv : Ref sig .scVector := ⟨.hbm, 14, rfl⟩
abbrev main_v14_scv : Ref sig .scVector := ⟨.hbm, 15, rfl⟩
abbrev main_v15_scv : Ref sig .scVector := ⟨.hbm, 16, rfl⟩
abbrev main_v16_scv : Ref sig .scVector := ⟨.hbm, 17, rfl⟩
abbrev main_v17_scv : Ref sig .scVector := ⟨.hbm, 18, rfl⟩
abbrev main_v18_scv : Ref sig .scVector := ⟨.hbm, 19, rfl⟩
abbrev main_v19_scv : Ref sig .scVector := ⟨.hbm, 20, rfl⟩
abbrev main_v20_scv : Ref sig .scVector := ⟨.hbm, 21, rfl⟩
abbrev main_v21_scv : Ref sig .scVector := ⟨.hbm, 22, rfl⟩
abbrev main_v22_scv : Ref sig .scVector := ⟨.hbm, 23, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc1_scratch0 : Ref sig .scVector := ⟨.vmem, 4, rfl⟩
abbrev cc1_scratch1 : Ref sig .scVector := ⟨.vmem, 5, rfl⟩
abbrev cc1_scratch2 : Ref sig .scVector := ⟨.vmem, 6, rfl⟩
abbrev cc1_scratch3 : Ref sig .scVector := ⟨.vmem, 7, rfl⟩
abbrev cc2_scratch0 : Ref sig .scVector := ⟨.vmem, 8, rfl⟩
abbrev cc2_scratch1 : Ref sig .scVector := ⟨.vmem, 9, rfl⟩
abbrev cc2_scratch2 : Ref sig .scVector := ⟨.vmem, 10, rfl⟩
abbrev cc2_scratch3 : Ref sig .scVector := ⟨.vmem, 11, rfl⟩
abbrev cc3_scratch0 : Ref sig .scVector := ⟨.vmem, 12, rfl⟩
abbrev cc3_scratch1 : Ref sig .scVector := ⟨.vmem, 13, rfl⟩
abbrev cc3_scratch2 : Ref sig .scVector := ⟨.vmem, 14, rfl⟩
abbrev cc3_scratch3 : Ref sig .scVector := ⟨.vmem, 15, rfl⟩
abbrev cc4_scratch0 : Ref sig .scVector := ⟨.vmem, 16, rfl⟩
abbrev cc4_scratch1 : Ref sig .scVector := ⟨.vmem, 17, rfl⟩
abbrev cc4_scratch2 : Ref sig .scVector := ⟨.vmem, 18, rfl⟩
abbrev cc4_scratch3 : Ref sig .scVector := ⟨.vmem, 19, rfl⟩
abbrev cc5_scratch0 : Ref sig .scVector := ⟨.vmem, 20, rfl⟩
abbrev cc5_scratch1 : Ref sig .scVector := ⟨.vmem, 21, rfl⟩
abbrev cc5_scratch2 : Ref sig .scVector := ⟨.vmem, 22, rfl⟩
abbrev cc5_scratch3 : Ref sig .scVector := ⟨.vmem, 23, rfl⟩
abbrev cc6_scratch0 : Ref sig .scVector := ⟨.vmem, 24, rfl⟩
abbrev cc6_scratch1 : Ref sig .scVector := ⟨.vmem, 25, rfl⟩
abbrev cc6_scratch2 : Ref sig .scVector := ⟨.vmem, 26, rfl⟩
abbrev cc6_scratch3 : Ref sig .scVector := ⟨.vmem, 27, rfl⟩
abbrev cc7_scratch0 : Ref sig .scVector := ⟨.vmem, 28, rfl⟩
abbrev cc7_scratch1 : Ref sig .scVector := ⟨.vmem, 29, rfl⟩
abbrev cc7_scratch2 : Ref sig .scVector := ⟨.vmem, 30, rfl⟩
abbrev cc7_scratch3 : Ref sig .scVector := ⟨.vmem, 31, rfl⟩
abbrev cc8_scratch0 : Ref sig .scVector := ⟨.vmem, 32, rfl⟩
abbrev cc8_scratch1 : Ref sig .scVector := ⟨.vmem, 33, rfl⟩
abbrev cc8_scratch2 : Ref sig .scVector := ⟨.vmem, 34, rfl⟩
abbrev cc8_scratch3 : Ref sig .scVector := ⟨.vmem, 35, rfl⟩
abbrev cc9_scratch0 : Ref sig .scVector := ⟨.vmem, 36, rfl⟩
abbrev cc9_scratch1 : Ref sig .scVector := ⟨.vmem, 37, rfl⟩
abbrev cc9_scratch2 : Ref sig .scVector := ⟨.vmem, 38, rfl⟩
abbrev cc9_scratch3 : Ref sig .scVector := ⟨.vmem, 39, rfl⟩
abbrev cc10_scratch0 : Ref sig .scVector := ⟨.vmem, 40, rfl⟩
abbrev cc10_scratch1 : Ref sig .scVector := ⟨.vmem, 41, rfl⟩
abbrev cc10_scratch2 : Ref sig .scVector := ⟨.vmem, 42, rfl⟩
abbrev cc10_scratch3 : Ref sig .scVector := ⟨.vmem, 43, rfl⟩
abbrev cc11_scratch0 : Ref sig .scVector := ⟨.vmem, 44, rfl⟩
abbrev cc11_scratch1 : Ref sig .scVector := ⟨.vmem, 45, rfl⟩
abbrev cc11_scratch2 : Ref sig .scVector := ⟨.vmem, 46, rfl⟩
abbrev cc11_scratch3 : Ref sig .scVector := ⟨.vmem, 47, rfl⟩
abbrev cc12_scratch0 : Ref sig .scVector := ⟨.vmem, 48, rfl⟩
abbrev cc12_scratch1 : Ref sig .scVector := ⟨.vmem, 49, rfl⟩
abbrev cc12_scratch2 : Ref sig .scVector := ⟨.vmem, 50, rfl⟩
abbrev cc12_scratch3 : Ref sig .scVector := ⟨.vmem, 51, rfl⟩
abbrev cc13_scratch0 : Ref sig .scVector := ⟨.vmem, 52, rfl⟩
abbrev cc13_scratch1 : Ref sig .scVector := ⟨.vmem, 53, rfl⟩
abbrev cc13_scratch2 : Ref sig .scVector := ⟨.vmem, 54, rfl⟩
abbrev cc13_scratch3 : Ref sig .scVector := ⟨.vmem, 55, rfl⟩
abbrev cc14_scratch0 : Ref sig .scVector := ⟨.vmem, 56, rfl⟩
abbrev cc14_scratch1 : Ref sig .scVector := ⟨.vmem, 57, rfl⟩
abbrev cc14_scratch2 : Ref sig .scVector := ⟨.vmem, 58, rfl⟩
abbrev cc14_scratch3 : Ref sig .scVector := ⟨.vmem, 59, rfl⟩
abbrev cc15_scratch0 : Ref sig .scVector := ⟨.vmem, 60, rfl⟩
abbrev cc15_scratch1 : Ref sig .scVector := ⟨.vmem, 61, rfl⟩
abbrev cc15_scratch2 : Ref sig .scVector := ⟨.vmem, 62, rfl⟩
abbrev cc15_scratch3 : Ref sig .scVector := ⟨.vmem, 63, rfl⟩
abbrev cc16_scratch0 : Ref sig .scVector := ⟨.vmem, 64, rfl⟩
abbrev cc16_scratch1 : Ref sig .scVector := ⟨.vmem, 65, rfl⟩
abbrev cc16_scratch2 : Ref sig .scVector := ⟨.vmem, 66, rfl⟩
abbrev cc16_scratch3 : Ref sig .scVector := ⟨.vmem, 67, rfl⟩
abbrev cc17_scratch0 : Ref sig .scVector := ⟨.vmem, 68, rfl⟩
abbrev cc17_scratch1 : Ref sig .scVector := ⟨.vmem, 69, rfl⟩
abbrev cc17_scratch2 : Ref sig .scVector := ⟨.vmem, 70, rfl⟩
abbrev cc17_scratch3 : Ref sig .scVector := ⟨.vmem, 71, rfl⟩
abbrev cc18_scratch0 : Ref sig .scVector := ⟨.vmem, 72, rfl⟩
abbrev cc18_scratch1 : Ref sig .scVector := ⟨.vmem, 73, rfl⟩
abbrev cc18_scratch2 : Ref sig .scVector := ⟨.vmem, 74, rfl⟩
abbrev cc18_scratch3 : Ref sig .scVector := ⟨.vmem, 75, rfl⟩
abbrev cc19_scratch0 : Ref sig .scVector := ⟨.vmem, 76, rfl⟩
abbrev cc19_scratch1 : Ref sig .scVector := ⟨.vmem, 77, rfl⟩
abbrev cc19_scratch2 : Ref sig .scVector := ⟨.vmem, 78, rfl⟩
abbrev cc19_scratch3 : Ref sig .scVector := ⟨.vmem, 79, rfl⟩
abbrev cc20_scratch0 : Ref sig .scVector := ⟨.vmem, 80, rfl⟩
abbrev cc20_scratch1 : Ref sig .scVector := ⟨.vmem, 81, rfl⟩
abbrev cc20_scratch2 : Ref sig .scVector := ⟨.vmem, 82, rfl⟩
abbrev cc20_scratch3 : Ref sig .scVector := ⟨.vmem, 83, rfl⟩
abbrev cc21_scratch0 : Ref sig .scVector := ⟨.vmem, 84, rfl⟩
abbrev cc21_scratch1 : Ref sig .scVector := ⟨.vmem, 85, rfl⟩
abbrev cc21_scratch2 : Ref sig .scVector := ⟨.vmem, 86, rfl⟩
abbrev cc21_scratch3 : Ref sig .scVector := ⟨.vmem, 87, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) (c0_i32_6 : BitVec 32) : Fin 2 → Nat :=
  let c0_i32_9 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v22 : BitVec 32 := Scalar.addi v1 c0_i32_6
  let c3200_i32 : BitVec 32 := 3200#32
  let v23 : BitVec 32 := Scalar.muli v22 c3200_i32
  ![0, v23.toNat]
@[reducible] def k0_t1_loop : Scf.Loop 32 :=
  let c0_i32_22 : BitVec 32 := 0#32
  let c8_i32 : BitVec 32 := 8#32
  let v34 : BitVec 32 := Scalar.addi c0_i32_22 c8_i32
  let c1_i32_23 : BitVec 32 := 1#32
  ⟨c0_i32_22, v34, c1_i32_23⟩
def k0_cond1 (k0_t1 : Fin k0_t1_loop.trips) : BitVec 1 :=
  let c0_i32_22 : BitVec 32 := 0#32
  let c1_i32_23 : BitVec 32 := 1#32
  let arg12 : BitVec 32 := Scf.iv c0_i32_22 c1_i32_23 k0_t1
  let c2_i32_27 : BitVec 32 := 2#32
  let v41 : BitVec 32 := Scalar.muli arg12 c2_i32_27
  let c2_i32_28 : BitVec 32 := 2#32
  let v42 : BitVec 1 := Scalar.cmpi .sge v41 c2_i32_28
  let v43 : BitVec 32 := Scalar.extui v42
  let c0_i32_29 : BitVec 32 := 0#32
  let v44 : BitVec 1 := Scalar.cmpi .ne v43 c0_i32_29
  v44

def k0_off2 (i : grid0.Coords) (k0_t1 : Fin k0_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_22 : BitVec 32 := 0#32
  let c1_i32_23 : BitVec 32 := 1#32
  let arg12 : BitVec 32 := Scf.iv c0_i32_22 c1_i32_23 k0_t1
  let c2_i32_27 : BitVec 32 := 2#32
  let v41 : BitVec 32 := Scalar.muli arg12 c2_i32_27
  let c2_i32_40 : BitVec 32 := 2#32
  let v64 : BitVec 32 := Scalar.subi v41 c2_i32_40
  let c32_i32_41 : BitVec 32 := 32#32
  let v65 : BitVec 32 := Scalar.muli v64 c32_i32_41
  let v66 : BitVec 32 := Scalar.addi v1 v65
  let c3200_i32_42 : BitVec 32 := 3200#32
  let v67 : BitVec 32 := Scalar.muli v66 c3200_i32_42
  ![v67.toNat]
def k0_cond2 (i : grid0.Coords) (k0_t1 : Fin k0_t1_loop.trips) : BitVec 1 :=
  let c0_i32_22 : BitVec 32 := 0#32
  let c1_i32_23 : BitVec 32 := 1#32
  let arg12 : BitVec 32 := Scf.iv c0_i32_22 c1_i32_23 k0_t1
  let c2_i32_27 : BitVec 32 := 2#32
  let v41 : BitVec 32 := Scalar.muli arg12 c2_i32_27
  let c500_i32 : BitVec 32 := 500#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v2 : BitVec 32 := Scalar.subi c500_i32 v1
  let c32_i32 : BitVec 32 := 32#32
  let v3 : BitVec 32 := Scalar.addi v2 c32_i32
  let c1_i32 : BitVec 32 := 1#32
  let v4 : BitVec 32 := Scalar.subi v3 c1_i32
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c32_i32_0 : BitVec 32 := 32#32
  let c0_i32_2 : BitVec 32 := 0#32
  let v11 : BitVec 1 := Scalar.cmpi .sgt c32_i32_0 c0_i32_2
  let v12 : BitVec 32 := Scalar.extui v11
  let c0_i32_3 : BitVec 32 := 0#32
  let v13 : BitVec 1 := Scalar.cmpi .slt c32_i32_0 c0_i32_3
  let v14 : BitVec 32 := Scalar.extui v13
  let v15 : BitVec 32 := Scalar.subi v12 v14
  let v16 : BitVec 1 := Scalar.cmpi .ne v10 v15
  let v17 : BitVec 32 := Scalar.remsi v4 c32_i32_0
  let c0_i32_4 : BitVec 32 := 0#32
  let v18 : BitVec 1 := Scalar.cmpi .ne v17 c0_i32_4
  let v19 : BitVec 1 := Scalar.andi v16 v18
  let v5 : BitVec 32 := Scalar.divsi v4 c32_i32_0
  let c1_i32_5 : BitVec 32 := 1#32
  let v20 : BitVec 32 := Scalar.subi v5 c1_i32_5
  let v21 : BitVec 32 := Scalar.select v19 v20 v5
  let v45 : BitVec 1 := Scalar.cmpi .slt v41 v21
  let v46 : BitVec 32 := Scalar.extui v45
  let c0_i32_30 : BitVec 32 := 0#32
  let v47 : BitVec 1 := Scalar.cmpi .ne v46 c0_i32_30
  v47

@[reducible] def k0_t2_loop : Scf.Loop 32 :=
  let c0_i32_49 : BitVec 32 := 0#32
  let c200_i32 : BitVec 32 := 200#32
  let v68 : BitVec 32 := Scalar.addi c0_i32_49 c200_i32
  let c1_i32_50 : BitVec 32 := 1#32
  ⟨c0_i32_49, v68, c1_i32_50⟩
def k0_off3 (k0_t2 : Fin k0_t2_loop.trips) : Fin 2 → Nat :=
  let c0_i32_56 : BitVec 32 := 0#32
  let v77 : Index := Scalar.indexCast c0_i32_56
  let c0_i32_49 : BitVec 32 := 0#32
  let c1_i32_50 : BitVec 32 := 1#32
  let arg13 : BitVec 32 := Scf.iv c0_i32_49 c1_i32_50 k0_t2
  let c16_i32 : BitVec 32 := 16#32
  let v76 : BitVec 32 := Scalar.muli arg13 c16_i32
  let v78 : Index := Scalar.indexCast v76
  ![0, v78.toNat]
def k0_off4 (k0_t2 : Fin k0_t2_loop.trips) : Fin 1 → Nat :=
  let c0_i32_58 : BitVec 32 := 0#32
  let c0_i32_49 : BitVec 32 := 0#32
  let c1_i32_50 : BitVec 32 := 1#32
  let arg13 : BitVec 32 := Scf.iv c0_i32_49 c1_i32_50 k0_t2
  let c16_i32_57 : BitVec 32 := 16#32
  let v80 : BitVec 32 := Scalar.muli arg13 c16_i32_57
  let v81 : BitVec 32 := Scalar.addi c0_i32_58 v80
  let v82 : Index := Scalar.indexCast v81
  ![v82.toNat]
def k0_off5 (i : grid0.Coords) (k0_t1 : Fin k0_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_22 : BitVec 32 := 0#32
  let c1_i32_23 : BitVec 32 := 1#32
  let arg12 : BitVec 32 := Scf.iv c0_i32_22 c1_i32_23 k0_t1
  let c2_i32_27 : BitVec 32 := 2#32
  let v41 : BitVec 32 := Scalar.muli arg12 c2_i32_27
  let c32_i32_52 : BitVec 32 := 32#32
  let v69 : BitVec 32 := Scalar.muli v41 c32_i32_52
  let v70 : BitVec 32 := Scalar.addi v1 v69
  let c3200_i32_53 : BitVec 32 := 3200#32
  let v71 : BitVec 32 := Scalar.muli v70 c3200_i32_53
  ![v71.toNat]
def k0_cond3 (i : grid0.Coords) (k0_t1 : Fin k0_t1_loop.trips) : BitVec 1 :=
  let c0_i32_22 : BitVec 32 := 0#32
  let c1_i32_23 : BitVec 32 := 1#32
  let arg12 : BitVec 32 := Scf.iv c0_i32_22 c1_i32_23 k0_t1
  let c2_i32_27 : BitVec 32 := 2#32
  let v41 : BitVec 32 := Scalar.muli arg12 c2_i32_27
  let c2_i32_31 : BitVec 32 := 2#32
  let v48 : BitVec 32 := Scalar.addi v41 c2_i32_31
  let c500_i32 : BitVec 32 := 500#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v2 : BitVec 32 := Scalar.subi c500_i32 v1
  let c32_i32 : BitVec 32 := 32#32
  let v3 : BitVec 32 := Scalar.addi v2 c32_i32
  let c1_i32 : BitVec 32 := 1#32
  let v4 : BitVec 32 := Scalar.subi v3 c1_i32
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c32_i32_0 : BitVec 32 := 32#32
  let c0_i32_2 : BitVec 32 := 0#32
  let v11 : BitVec 1 := Scalar.cmpi .sgt c32_i32_0 c0_i32_2
  let v12 : BitVec 32 := Scalar.extui v11
  let c0_i32_3 : BitVec 32 := 0#32
  let v13 : BitVec 1 := Scalar.cmpi .slt c32_i32_0 c0_i32_3
  let v14 : BitVec 32 := Scalar.extui v13
  let v15 : BitVec 32 := Scalar.subi v12 v14
  let v16 : BitVec 1 := Scalar.cmpi .ne v10 v15
  let v17 : BitVec 32 := Scalar.remsi v4 c32_i32_0
  let c0_i32_4 : BitVec 32 := 0#32
  let v18 : BitVec 1 := Scalar.cmpi .ne v17 c0_i32_4
  let v19 : BitVec 1 := Scalar.andi v16 v18
  let v5 : BitVec 32 := Scalar.divsi v4 c32_i32_0
  let c1_i32_5 : BitVec 32 := 1#32
  let v20 : BitVec 32 := Scalar.subi v5 c1_i32_5
  let v21 : BitVec 32 := Scalar.select v19 v20 v5
  let v49 : BitVec 1 := Scalar.cmpi .slt v48 v21
  let v50 : BitVec 32 := Scalar.extui v49
  let c0_i32_32 : BitVec 32 := 0#32
  let v51 : BitVec 1 := Scalar.cmpi .ne v50 c0_i32_32
  v51

def k0_off6 (i : grid0.Coords) (k0_t1 : Fin k0_t1_loop.trips) : Fin 2 → Nat :=
  let c0_i32_45 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_22 : BitVec 32 := 0#32
  let c1_i32_23 : BitVec 32 := 1#32
  let arg12 : BitVec 32 := Scf.iv c0_i32_22 c1_i32_23 k0_t1
  let c2_i32_27 : BitVec 32 := 2#32
  let v41 : BitVec 32 := Scalar.muli arg12 c2_i32_27
  let c2_i32_40 : BitVec 32 := 2#32
  let v64 : BitVec 32 := Scalar.addi v41 c2_i32_40
  let c32_i32_41 : BitVec 32 := 32#32
  let v65 : BitVec 32 := Scalar.muli v64 c32_i32_41
  let v66 : BitVec 32 := Scalar.addi v1 v65
  let c3200_i32_42 : BitVec 32 := 3200#32
  let v67 : BitVec 32 := Scalar.muli v66 c3200_i32_42
  ![0, v67.toNat]
def k0_cond4 (k0_t1 : Fin k0_t1_loop.trips) : BitVec 1 :=
  let c0_i32_22 : BitVec 32 := 0#32
  let c1_i32_23 : BitVec 32 := 1#32
  let arg12 : BitVec 32 := Scf.iv c0_i32_22 c1_i32_23 k0_t1
  let c2_i32_33 : BitVec 32 := 2#32
  let v52 : BitVec 32 := Scalar.muli arg12 c2_i32_33
  let c1_i32_34 : BitVec 32 := 1#32
  let v53 : BitVec 32 := Scalar.addi v52 c1_i32_34
  let c2_i32_35 : BitVec 32 := 2#32
  let v54 : BitVec 1 := Scalar.cmpi .sge v53 c2_i32_35
  let v55 : BitVec 32 := Scalar.extui v54
  let c0_i32_36 : BitVec 32 := 0#32
  let v56 : BitVec 1 := Scalar.cmpi .ne v55 c0_i32_36
  v56

def k0_off7 (i : grid0.Coords) (k0_t1 : Fin k0_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_22 : BitVec 32 := 0#32
  let c1_i32_23 : BitVec 32 := 1#32
  let arg12 : BitVec 32 := Scf.iv c0_i32_22 c1_i32_23 k0_t1
  let c2_i32_33 : BitVec 32 := 2#32
  let v52 : BitVec 32 := Scalar.muli arg12 c2_i32_33
  let c1_i32_34 : BitVec 32 := 1#32
  let v53 : BitVec 32 := Scalar.addi v52 c1_i32_34
  let c2_i32_40 : BitVec 32 := 2#32
  let v64 : BitVec 32 := Scalar.subi v53 c2_i32_40
  let c32_i32_41 : BitVec 32 := 32#32
  let v65 : BitVec 32 := Scalar.muli v64 c32_i32_41
  let v66 : BitVec 32 := Scalar.addi v1 v65
  let c3200_i32_42 : BitVec 32 := 3200#32
  let v67 : BitVec 32 := Scalar.muli v66 c3200_i32_42
  ![v67.toNat]
def k0_cond5 (i : grid0.Coords) (k0_t1 : Fin k0_t1_loop.trips) : BitVec 1 :=
  let c0_i32_22 : BitVec 32 := 0#32
  let c1_i32_23 : BitVec 32 := 1#32
  let arg12 : BitVec 32 := Scf.iv c0_i32_22 c1_i32_23 k0_t1
  let c2_i32_33 : BitVec 32 := 2#32
  let v52 : BitVec 32 := Scalar.muli arg12 c2_i32_33
  let c1_i32_34 : BitVec 32 := 1#32
  let v53 : BitVec 32 := Scalar.addi v52 c1_i32_34
  let c500_i32 : BitVec 32 := 500#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v2 : BitVec 32 := Scalar.subi c500_i32 v1
  let c32_i32 : BitVec 32 := 32#32
  let v3 : BitVec 32 := Scalar.addi v2 c32_i32
  let c1_i32 : BitVec 32 := 1#32
  let v4 : BitVec 32 := Scalar.subi v3 c1_i32
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c32_i32_0 : BitVec 32 := 32#32
  let c0_i32_2 : BitVec 32 := 0#32
  let v11 : BitVec 1 := Scalar.cmpi .sgt c32_i32_0 c0_i32_2
  let v12 : BitVec 32 := Scalar.extui v11
  let c0_i32_3 : BitVec 32 := 0#32
  let v13 : BitVec 1 := Scalar.cmpi .slt c32_i32_0 c0_i32_3
  let v14 : BitVec 32 := Scalar.extui v13
  let v15 : BitVec 32 := Scalar.subi v12 v14
  let v16 : BitVec 1 := Scalar.cmpi .ne v10 v15
  let v17 : BitVec 32 := Scalar.remsi v4 c32_i32_0
  let c0_i32_4 : BitVec 32 := 0#32
  let v18 : BitVec 1 := Scalar.cmpi .ne v17 c0_i32_4
  let v19 : BitVec 1 := Scalar.andi v16 v18
  let v5 : BitVec 32 := Scalar.divsi v4 c32_i32_0
  let c1_i32_5 : BitVec 32 := 1#32
  let v20 : BitVec 32 := Scalar.subi v5 c1_i32_5
  let v21 : BitVec 32 := Scalar.select v19 v20 v5
  let v57 : BitVec 1 := Scalar.cmpi .slt v53 v21
  let v58 : BitVec 32 := Scalar.extui v57
  let c0_i32_37 : BitVec 32 := 0#32
  let v59 : BitVec 1 := Scalar.cmpi .ne v58 c0_i32_37
  v59

@[reducible] def k0_t3_loop : Scf.Loop 32 :=
  let c0_i32_49 : BitVec 32 := 0#32
  let c200_i32 : BitVec 32 := 200#32
  let v68 : BitVec 32 := Scalar.addi c0_i32_49 c200_i32
  let c1_i32_50 : BitVec 32 := 1#32
  ⟨c0_i32_49, v68, c1_i32_50⟩
def k0_off8 (k0_t3 : Fin k0_t3_loop.trips) : Fin 2 → Nat :=
  let c0_i32_56 : BitVec 32 := 0#32
  let v77 : Index := Scalar.indexCast c0_i32_56
  let c0_i32_49 : BitVec 32 := 0#32
  let c1_i32_50 : BitVec 32 := 1#32
  let arg13 : BitVec 32 := Scf.iv c0_i32_49 c1_i32_50 k0_t3
  let c16_i32 : BitVec 32 := 16#32
  let v76 : BitVec 32 := Scalar.muli arg13 c16_i32
  let v78 : Index := Scalar.indexCast v76
  ![0, v78.toNat]
def k0_off9 (k0_t3 : Fin k0_t3_loop.trips) : Fin 1 → Nat :=
  let c0_i32_58 : BitVec 32 := 0#32
  let c0_i32_49 : BitVec 32 := 0#32
  let c1_i32_50 : BitVec 32 := 1#32
  let arg13 : BitVec 32 := Scf.iv c0_i32_49 c1_i32_50 k0_t3
  let c16_i32_57 : BitVec 32 := 16#32
  let v80 : BitVec 32 := Scalar.muli arg13 c16_i32_57
  let v81 : BitVec 32 := Scalar.addi c0_i32_58 v80
  let v82 : Index := Scalar.indexCast v81
  ![v82.toNat]
def k0_off10 (i : grid0.Coords) (k0_t1 : Fin k0_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_22 : BitVec 32 := 0#32
  let c1_i32_23 : BitVec 32 := 1#32
  let arg12 : BitVec 32 := Scf.iv c0_i32_22 c1_i32_23 k0_t1
  let c2_i32_33 : BitVec 32 := 2#32
  let v52 : BitVec 32 := Scalar.muli arg12 c2_i32_33
  let c1_i32_34 : BitVec 32 := 1#32
  let v53 : BitVec 32 := Scalar.addi v52 c1_i32_34
  let c32_i32_52 : BitVec 32 := 32#32
  let v69 : BitVec 32 := Scalar.muli v53 c32_i32_52
  let v70 : BitVec 32 := Scalar.addi v1 v69
  let c3200_i32_53 : BitVec 32 := 3200#32
  let v71 : BitVec 32 := Scalar.muli v70 c3200_i32_53
  ![v71.toNat]
def k0_cond6 (i : grid0.Coords) (k0_t1 : Fin k0_t1_loop.trips) : BitVec 1 :=
  let c0_i32_22 : BitVec 32 := 0#32
  let c1_i32_23 : BitVec 32 := 1#32
  let arg12 : BitVec 32 := Scf.iv c0_i32_22 c1_i32_23 k0_t1
  let c2_i32_33 : BitVec 32 := 2#32
  let v52 : BitVec 32 := Scalar.muli arg12 c2_i32_33
  let c1_i32_34 : BitVec 32 := 1#32
  let v53 : BitVec 32 := Scalar.addi v52 c1_i32_34
  let c2_i32_38 : BitVec 32 := 2#32
  let v60 : BitVec 32 := Scalar.addi v53 c2_i32_38
  let c500_i32 : BitVec 32 := 500#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v2 : BitVec 32 := Scalar.subi c500_i32 v1
  let c32_i32 : BitVec 32 := 32#32
  let v3 : BitVec 32 := Scalar.addi v2 c32_i32
  let c1_i32 : BitVec 32 := 1#32
  let v4 : BitVec 32 := Scalar.subi v3 c1_i32
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c32_i32_0 : BitVec 32 := 32#32
  let c0_i32_2 : BitVec 32 := 0#32
  let v11 : BitVec 1 := Scalar.cmpi .sgt c32_i32_0 c0_i32_2
  let v12 : BitVec 32 := Scalar.extui v11
  let c0_i32_3 : BitVec 32 := 0#32
  let v13 : BitVec 1 := Scalar.cmpi .slt c32_i32_0 c0_i32_3
  let v14 : BitVec 32 := Scalar.extui v13
  let v15 : BitVec 32 := Scalar.subi v12 v14
  let v16 : BitVec 1 := Scalar.cmpi .ne v10 v15
  let v17 : BitVec 32 := Scalar.remsi v4 c32_i32_0
  let c0_i32_4 : BitVec 32 := 0#32
  let v18 : BitVec 1 := Scalar.cmpi .ne v17 c0_i32_4
  let v19 : BitVec 1 := Scalar.andi v16 v18
  let v5 : BitVec 32 := Scalar.divsi v4 c32_i32_0
  let c1_i32_5 : BitVec 32 := 1#32
  let v20 : BitVec 32 := Scalar.subi v5 c1_i32_5
  let v21 : BitVec 32 := Scalar.select v19 v20 v5
  let v61 : BitVec 1 := Scalar.cmpi .slt v60 v21
  let v62 : BitVec 32 := Scalar.extui v61
  let c0_i32_39 : BitVec 32 := 0#32
  let v63 : BitVec 1 := Scalar.cmpi .ne v62 c0_i32_39
  v63

def k0_off11 (i : grid0.Coords) (k0_t1 : Fin k0_t1_loop.trips) : Fin 2 → Nat :=
  let c0_i32_45 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_22 : BitVec 32 := 0#32
  let c1_i32_23 : BitVec 32 := 1#32
  let arg12 : BitVec 32 := Scf.iv c0_i32_22 c1_i32_23 k0_t1
  let c2_i32_33 : BitVec 32 := 2#32
  let v52 : BitVec 32 := Scalar.muli arg12 c2_i32_33
  let c1_i32_34 : BitVec 32 := 1#32
  let v53 : BitVec 32 := Scalar.addi v52 c1_i32_34
  let c2_i32_40 : BitVec 32 := 2#32
  let v64 : BitVec 32 := Scalar.addi v53 c2_i32_40
  let c32_i32_41 : BitVec 32 := 32#32
  let v65 : BitVec 32 := Scalar.muli v64 c32_i32_41
  let v66 : BitVec 32 := Scalar.addi v1 v65
  let c3200_i32_42 : BitVec 32 := 3200#32
  let v67 : BitVec 32 := Scalar.muli v66 c3200_i32_42
  ![0, v67.toNat]
def k0_cond7 (i : grid0.Coords) : BitVec 1 :=
  let c500_i32 : BitVec 32 := 500#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v2 : BitVec 32 := Scalar.subi c500_i32 v1
  let c32_i32 : BitVec 32 := 32#32
  let v3 : BitVec 32 := Scalar.addi v2 c32_i32
  let c1_i32 : BitVec 32 := 1#32
  let v4 : BitVec 32 := Scalar.subi v3 c1_i32
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c32_i32_0 : BitVec 32 := 32#32
  let c0_i32_2 : BitVec 32 := 0#32
  let v11 : BitVec 1 := Scalar.cmpi .sgt c32_i32_0 c0_i32_2
  let v12 : BitVec 32 := Scalar.extui v11
  let c0_i32_3 : BitVec 32 := 0#32
  let v13 : BitVec 1 := Scalar.cmpi .slt c32_i32_0 c0_i32_3
  let v14 : BitVec 32 := Scalar.extui v13
  let v15 : BitVec 32 := Scalar.subi v12 v14
  let v16 : BitVec 1 := Scalar.cmpi .ne v10 v15
  let v17 : BitVec 32 := Scalar.remsi v4 c32_i32_0
  let c0_i32_4 : BitVec 32 := 0#32
  let v18 : BitVec 1 := Scalar.cmpi .ne v17 c0_i32_4
  let v19 : BitVec 1 := Scalar.andi v16 v18
  let v5 : BitVec 32 := Scalar.divsi v4 c32_i32_0
  let c1_i32_5 : BitVec 32 := 1#32
  let v20 : BitVec 32 := Scalar.subi v5 c1_i32_5
  let v21 : BitVec 32 := Scalar.select v19 v20 v5
  let c14_i32 : BitVec 32 := 14#32
  let v35 : BitVec 1 := Scalar.cmpi .sgt v21 c14_i32
  let v36 : BitVec 32 := Scalar.extui v35
  let c0_i32_25 : BitVec 32 := 0#32
  let v37 : BitVec 1 := Scalar.cmpi .ne v36 c0_i32_25
  v37

def k0_off12 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c448_i32 : BitVec 32 := 448#32
  let v41 : BitVec 32 := Scalar.addi v1 c448_i32
  let c3200_i32_27 : BitVec 32 := 3200#32
  let v42 : BitVec 32 := Scalar.muli v41 c3200_i32_27
  ![v42.toNat]
def k0_cond8 (i : grid0.Coords) : BitVec 1 :=
  let c500_i32 : BitVec 32 := 500#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v2 : BitVec 32 := Scalar.subi c500_i32 v1
  let c32_i32 : BitVec 32 := 32#32
  let v3 : BitVec 32 := Scalar.addi v2 c32_i32
  let c1_i32 : BitVec 32 := 1#32
  let v4 : BitVec 32 := Scalar.subi v3 c1_i32
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c32_i32_0 : BitVec 32 := 32#32
  let c0_i32_2 : BitVec 32 := 0#32
  let v11 : BitVec 1 := Scalar.cmpi .sgt c32_i32_0 c0_i32_2
  let v12 : BitVec 32 := Scalar.extui v11
  let c0_i32_3 : BitVec 32 := 0#32
  let v13 : BitVec 1 := Scalar.cmpi .slt c32_i32_0 c0_i32_3
  let v14 : BitVec 32 := Scalar.extui v13
  let v15 : BitVec 32 := Scalar.subi v12 v14
  let v16 : BitVec 1 := Scalar.cmpi .ne v10 v15
  let v17 : BitVec 32 := Scalar.remsi v4 c32_i32_0
  let c0_i32_4 : BitVec 32 := 0#32
  let v18 : BitVec 1 := Scalar.cmpi .ne v17 c0_i32_4
  let v19 : BitVec 1 := Scalar.andi v16 v18
  let v5 : BitVec 32 := Scalar.divsi v4 c32_i32_0
  let c1_i32_5 : BitVec 32 := 1#32
  let v20 : BitVec 32 := Scalar.subi v5 c1_i32_5
  let v21 : BitVec 32 := Scalar.select v19 v20 v5
  let c15_i32 : BitVec 32 := 15#32
  let v38 : BitVec 1 := Scalar.cmpi .sgt v21 c15_i32
  let v39 : BitVec 32 := Scalar.extui v38
  let c0_i32_26 : BitVec 32 := 0#32
  let v40 : BitVec 1 := Scalar.cmpi .ne v39 c0_i32_26
  v40

def k0_off13 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c480_i32 : BitVec 32 := 480#32
  let v41 : BitVec 32 := Scalar.addi v1 c480_i32
  let c3200_i32_27 : BitVec 32 := 3200#32
  let v42 : BitVec 32 := Scalar.muli v41 c3200_i32_27
  ![v42.toNat]
abbrev grid1 : Pipeline.Grid := ⟨2, ![2, 16], ![false, false]⟩

def k1_off1 (i : grid1.Coords) (c0_i32_6 : BitVec 32) : Fin 2 → Nat :=
  let c1_i32_9 : BitVec 32 := 1#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v22 : BitVec 32 := Scalar.addi v1 c0_i32_6
  let c3200_i32 : BitVec 32 := 3200#32
  let v23 : BitVec 32 := Scalar.muli v22 c3200_i32
  ![1, v23.toNat]
@[reducible] def k1_t1_loop : Scf.Loop 32 :=
  let c0_i32_22 : BitVec 32 := 0#32
  let c8_i32 : BitVec 32 := 8#32
  let v34 : BitVec 32 := Scalar.addi c0_i32_22 c8_i32
  let c1_i32_23 : BitVec 32 := 1#32
  ⟨c0_i32_22, v34, c1_i32_23⟩
def k1_cond1 (k1_t1 : Fin k1_t1_loop.trips) : BitVec 1 :=
  let c0_i32_22 : BitVec 32 := 0#32
  let c1_i32_23 : BitVec 32 := 1#32
  let arg12 : BitVec 32 := Scf.iv c0_i32_22 c1_i32_23 k1_t1
  let c2_i32_27 : BitVec 32 := 2#32
  let v41 : BitVec 32 := Scalar.muli arg12 c2_i32_27
  let c2_i32_28 : BitVec 32 := 2#32
  let v42 : BitVec 1 := Scalar.cmpi .sge v41 c2_i32_28
  let v43 : BitVec 32 := Scalar.extui v42
  let c0_i32_29 : BitVec 32 := 0#32
  let v44 : BitVec 1 := Scalar.cmpi .ne v43 c0_i32_29
  v44

def k1_off2 (i : grid1.Coords) (k1_t1 : Fin k1_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_22 : BitVec 32 := 0#32
  let c1_i32_23 : BitVec 32 := 1#32
  let arg12 : BitVec 32 := Scf.iv c0_i32_22 c1_i32_23 k1_t1
  let c2_i32_27 : BitVec 32 := 2#32
  let v41 : BitVec 32 := Scalar.muli arg12 c2_i32_27
  let c2_i32_40 : BitVec 32 := 2#32
  let v64 : BitVec 32 := Scalar.subi v41 c2_i32_40
  let c32_i32_41 : BitVec 32 := 32#32
  let v65 : BitVec 32 := Scalar.muli v64 c32_i32_41
  let v66 : BitVec 32 := Scalar.addi v1 v65
  let c3200_i32_42 : BitVec 32 := 3200#32
  let v67 : BitVec 32 := Scalar.muli v66 c3200_i32_42
  ![v67.toNat]
def k1_cond2 (i : grid1.Coords) (k1_t1 : Fin k1_t1_loop.trips) : BitVec 1 :=
  let c0_i32_22 : BitVec 32 := 0#32
  let c1_i32_23 : BitVec 32 := 1#32
  let arg12 : BitVec 32 := Scf.iv c0_i32_22 c1_i32_23 k1_t1
  let c2_i32_27 : BitVec 32 := 2#32
  let v41 : BitVec 32 := Scalar.muli arg12 c2_i32_27
  let c500_i32 : BitVec 32 := 500#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v2 : BitVec 32 := Scalar.subi c500_i32 v1
  let c32_i32 : BitVec 32 := 32#32
  let v3 : BitVec 32 := Scalar.addi v2 c32_i32
  let c1_i32 : BitVec 32 := 1#32
  let v4 : BitVec 32 := Scalar.subi v3 c1_i32
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c32_i32_0 : BitVec 32 := 32#32
  let c0_i32_2 : BitVec 32 := 0#32
  let v11 : BitVec 1 := Scalar.cmpi .sgt c32_i32_0 c0_i32_2
  let v12 : BitVec 32 := Scalar.extui v11
  let c0_i32_3 : BitVec 32 := 0#32
  let v13 : BitVec 1 := Scalar.cmpi .slt c32_i32_0 c0_i32_3
  let v14 : BitVec 32 := Scalar.extui v13
  let v15 : BitVec 32 := Scalar.subi v12 v14
  let v16 : BitVec 1 := Scalar.cmpi .ne v10 v15
  let v17 : BitVec 32 := Scalar.remsi v4 c32_i32_0
  let c0_i32_4 : BitVec 32 := 0#32
  let v18 : BitVec 1 := Scalar.cmpi .ne v17 c0_i32_4
  let v19 : BitVec 1 := Scalar.andi v16 v18
  let v5 : BitVec 32 := Scalar.divsi v4 c32_i32_0
  let c1_i32_5 : BitVec 32 := 1#32
  let v20 : BitVec 32 := Scalar.subi v5 c1_i32_5
  let v21 : BitVec 32 := Scalar.select v19 v20 v5
  let v45 : BitVec 1 := Scalar.cmpi .slt v41 v21
  let v46 : BitVec 32 := Scalar.extui v45
  let c0_i32_30 : BitVec 32 := 0#32
  let v47 : BitVec 1 := Scalar.cmpi .ne v46 c0_i32_30
  v47

@[reducible] def k1_t2_loop : Scf.Loop 32 :=
  let c0_i32_49 : BitVec 32 := 0#32
  let c200_i32 : BitVec 32 := 200#32
  let v68 : BitVec 32 := Scalar.addi c0_i32_49 c200_i32
  let c1_i32_50 : BitVec 32 := 1#32
  ⟨c0_i32_49, v68, c1_i32_50⟩
def k1_off3 (k1_t2 : Fin k1_t2_loop.trips) : Fin 2 → Nat :=
  let c0_i32_56 : BitVec 32 := 0#32
  let v77 : Index := Scalar.indexCast c0_i32_56
  let c0_i32_49 : BitVec 32 := 0#32
  let c1_i32_50 : BitVec 32 := 1#32
  let arg13 : BitVec 32 := Scf.iv c0_i32_49 c1_i32_50 k1_t2
  let c16_i32 : BitVec 32 := 16#32
  let v76 : BitVec 32 := Scalar.muli arg13 c16_i32
  let v78 : Index := Scalar.indexCast v76
  ![0, v78.toNat]
def k1_off4 (k1_t2 : Fin k1_t2_loop.trips) : Fin 1 → Nat :=
  let c0_i32_58 : BitVec 32 := 0#32
  let c0_i32_49 : BitVec 32 := 0#32
  let c1_i32_50 : BitVec 32 := 1#32
  let arg13 : BitVec 32 := Scf.iv c0_i32_49 c1_i32_50 k1_t2
  let c16_i32_57 : BitVec 32 := 16#32
  let v80 : BitVec 32 := Scalar.muli arg13 c16_i32_57
  let v81 : BitVec 32 := Scalar.addi c0_i32_58 v80
  let v82 : Index := Scalar.indexCast v81
  ![v82.toNat]
def k1_off5 (i : grid1.Coords) (k1_t1 : Fin k1_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_22 : BitVec 32 := 0#32
  let c1_i32_23 : BitVec 32 := 1#32
  let arg12 : BitVec 32 := Scf.iv c0_i32_22 c1_i32_23 k1_t1
  let c2_i32_27 : BitVec 32 := 2#32
  let v41 : BitVec 32 := Scalar.muli arg12 c2_i32_27
  let c32_i32_52 : BitVec 32 := 32#32
  let v69 : BitVec 32 := Scalar.muli v41 c32_i32_52
  let v70 : BitVec 32 := Scalar.addi v1 v69
  let c3200_i32_53 : BitVec 32 := 3200#32
  let v71 : BitVec 32 := Scalar.muli v70 c3200_i32_53
  ![v71.toNat]
def k1_cond3 (i : grid1.Coords) (k1_t1 : Fin k1_t1_loop.trips) : BitVec 1 :=
  let c0_i32_22 : BitVec 32 := 0#32
  let c1_i32_23 : BitVec 32 := 1#32
  let arg12 : BitVec 32 := Scf.iv c0_i32_22 c1_i32_23 k1_t1
  let c2_i32_27 : BitVec 32 := 2#32
  let v41 : BitVec 32 := Scalar.muli arg12 c2_i32_27
  let c2_i32_31 : BitVec 32 := 2#32
  let v48 : BitVec 32 := Scalar.addi v41 c2_i32_31
  let c500_i32 : BitVec 32 := 500#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v2 : BitVec 32 := Scalar.subi c500_i32 v1
  let c32_i32 : BitVec 32 := 32#32
  let v3 : BitVec 32 := Scalar.addi v2 c32_i32
  let c1_i32 : BitVec 32 := 1#32
  let v4 : BitVec 32 := Scalar.subi v3 c1_i32
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c32_i32_0 : BitVec 32 := 32#32
  let c0_i32_2 : BitVec 32 := 0#32
  let v11 : BitVec 1 := Scalar.cmpi .sgt c32_i32_0 c0_i32_2
  let v12 : BitVec 32 := Scalar.extui v11
  let c0_i32_3 : BitVec 32 := 0#32
  let v13 : BitVec 1 := Scalar.cmpi .slt c32_i32_0 c0_i32_3
  let v14 : BitVec 32 := Scalar.extui v13
  let v15 : BitVec 32 := Scalar.subi v12 v14
  let v16 : BitVec 1 := Scalar.cmpi .ne v10 v15
  let v17 : BitVec 32 := Scalar.remsi v4 c32_i32_0
  let c0_i32_4 : BitVec 32 := 0#32
  let v18 : BitVec 1 := Scalar.cmpi .ne v17 c0_i32_4
  let v19 : BitVec 1 := Scalar.andi v16 v18
  let v5 : BitVec 32 := Scalar.divsi v4 c32_i32_0
  let c1_i32_5 : BitVec 32 := 1#32
  let v20 : BitVec 32 := Scalar.subi v5 c1_i32_5
  let v21 : BitVec 32 := Scalar.select v19 v20 v5
  let v49 : BitVec 1 := Scalar.cmpi .slt v48 v21
  let v50 : BitVec 32 := Scalar.extui v49
  let c0_i32_32 : BitVec 32 := 0#32
  let v51 : BitVec 1 := Scalar.cmpi .ne v50 c0_i32_32
  v51

def k1_off6 (i : grid1.Coords) (k1_t1 : Fin k1_t1_loop.trips) : Fin 2 → Nat :=
  let c1_i32_45 : BitVec 32 := 1#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_22 : BitVec 32 := 0#32
  let c1_i32_23 : BitVec 32 := 1#32
  let arg12 : BitVec 32 := Scf.iv c0_i32_22 c1_i32_23 k1_t1
  let c2_i32_27 : BitVec 32 := 2#32
  let v41 : BitVec 32 := Scalar.muli arg12 c2_i32_27
  let c2_i32_40 : BitVec 32 := 2#32
  let v64 : BitVec 32 := Scalar.addi v41 c2_i32_40
  let c32_i32_41 : BitVec 32 := 32#32
  let v65 : BitVec 32 := Scalar.muli v64 c32_i32_41
  let v66 : BitVec 32 := Scalar.addi v1 v65
  let c3200_i32_42 : BitVec 32 := 3200#32
  let v67 : BitVec 32 := Scalar.muli v66 c3200_i32_42
  ![1, v67.toNat]
def k1_cond4 (k1_t1 : Fin k1_t1_loop.trips) : BitVec 1 :=
  let c0_i32_22 : BitVec 32 := 0#32
  let c1_i32_23 : BitVec 32 := 1#32
  let arg12 : BitVec 32 := Scf.iv c0_i32_22 c1_i32_23 k1_t1
  let c2_i32_33 : BitVec 32 := 2#32
  let v52 : BitVec 32 := Scalar.muli arg12 c2_i32_33
  let c1_i32_34 : BitVec 32 := 1#32
  let v53 : BitVec 32 := Scalar.addi v52 c1_i32_34
  let c2_i32_35 : BitVec 32 := 2#32
  let v54 : BitVec 1 := Scalar.cmpi .sge v53 c2_i32_35
  let v55 : BitVec 32 := Scalar.extui v54
  let c0_i32_36 : BitVec 32 := 0#32
  let v56 : BitVec 1 := Scalar.cmpi .ne v55 c0_i32_36
  v56

def k1_off7 (i : grid1.Coords) (k1_t1 : Fin k1_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_22 : BitVec 32 := 0#32
  let c1_i32_23 : BitVec 32 := 1#32
  let arg12 : BitVec 32 := Scf.iv c0_i32_22 c1_i32_23 k1_t1
  let c2_i32_33 : BitVec 32 := 2#32
  let v52 : BitVec 32 := Scalar.muli arg12 c2_i32_33
  let c1_i32_34 : BitVec 32 := 1#32
  let v53 : BitVec 32 := Scalar.addi v52 c1_i32_34
  let c2_i32_40 : BitVec 32 := 2#32
  let v64 : BitVec 32 := Scalar.subi v53 c2_i32_40
  let c32_i32_41 : BitVec 32 := 32#32
  let v65 : BitVec 32 := Scalar.muli v64 c32_i32_41
  let v66 : BitVec 32 := Scalar.addi v1 v65
  let c3200_i32_42 : BitVec 32 := 3200#32
  let v67 : BitVec 32 := Scalar.muli v66 c3200_i32_42
  ![v67.toNat]
def k1_cond5 (i : grid1.Coords) (k1_t1 : Fin k1_t1_loop.trips) : BitVec 1 :=
  let c0_i32_22 : BitVec 32 := 0#32
  let c1_i32_23 : BitVec 32 := 1#32
  let arg12 : BitVec 32 := Scf.iv c0_i32_22 c1_i32_23 k1_t1
  let c2_i32_33 : BitVec 32 := 2#32
  let v52 : BitVec 32 := Scalar.muli arg12 c2_i32_33
  let c1_i32_34 : BitVec 32 := 1#32
  let v53 : BitVec 32 := Scalar.addi v52 c1_i32_34
  let c500_i32 : BitVec 32 := 500#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v2 : BitVec 32 := Scalar.subi c500_i32 v1
  let c32_i32 : BitVec 32 := 32#32
  let v3 : BitVec 32 := Scalar.addi v2 c32_i32
  let c1_i32 : BitVec 32 := 1#32
  let v4 : BitVec 32 := Scalar.subi v3 c1_i32
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c32_i32_0 : BitVec 32 := 32#32
  let c0_i32_2 : BitVec 32 := 0#32
  let v11 : BitVec 1 := Scalar.cmpi .sgt c32_i32_0 c0_i32_2
  let v12 : BitVec 32 := Scalar.extui v11
  let c0_i32_3 : BitVec 32 := 0#32
  let v13 : BitVec 1 := Scalar.cmpi .slt c32_i32_0 c0_i32_3
  let v14 : BitVec 32 := Scalar.extui v13
  let v15 : BitVec 32 := Scalar.subi v12 v14
  let v16 : BitVec 1 := Scalar.cmpi .ne v10 v15
  let v17 : BitVec 32 := Scalar.remsi v4 c32_i32_0
  let c0_i32_4 : BitVec 32 := 0#32
  let v18 : BitVec 1 := Scalar.cmpi .ne v17 c0_i32_4
  let v19 : BitVec 1 := Scalar.andi v16 v18
  let v5 : BitVec 32 := Scalar.divsi v4 c32_i32_0
  let c1_i32_5 : BitVec 32 := 1#32
  let v20 : BitVec 32 := Scalar.subi v5 c1_i32_5
  let v21 : BitVec 32 := Scalar.select v19 v20 v5
  let v57 : BitVec 1 := Scalar.cmpi .slt v53 v21
  let v58 : BitVec 32 := Scalar.extui v57
  let c0_i32_37 : BitVec 32 := 0#32
  let v59 : BitVec 1 := Scalar.cmpi .ne v58 c0_i32_37
  v59

@[reducible] def k1_t3_loop : Scf.Loop 32 :=
  let c0_i32_49 : BitVec 32 := 0#32
  let c200_i32 : BitVec 32 := 200#32
  let v68 : BitVec 32 := Scalar.addi c0_i32_49 c200_i32
  let c1_i32_50 : BitVec 32 := 1#32
  ⟨c0_i32_49, v68, c1_i32_50⟩
def k1_off8 (k1_t3 : Fin k1_t3_loop.trips) : Fin 2 → Nat :=
  let c0_i32_56 : BitVec 32 := 0#32
  let v77 : Index := Scalar.indexCast c0_i32_56
  let c0_i32_49 : BitVec 32 := 0#32
  let c1_i32_50 : BitVec 32 := 1#32
  let arg13 : BitVec 32 := Scf.iv c0_i32_49 c1_i32_50 k1_t3
  let c16_i32 : BitVec 32 := 16#32
  let v76 : BitVec 32 := Scalar.muli arg13 c16_i32
  let v78 : Index := Scalar.indexCast v76
  ![0, v78.toNat]
def k1_off9 (k1_t3 : Fin k1_t3_loop.trips) : Fin 1 → Nat :=
  let c0_i32_58 : BitVec 32 := 0#32
  let c0_i32_49 : BitVec 32 := 0#32
  let c1_i32_50 : BitVec 32 := 1#32
  let arg13 : BitVec 32 := Scf.iv c0_i32_49 c1_i32_50 k1_t3
  let c16_i32_57 : BitVec 32 := 16#32
  let v80 : BitVec 32 := Scalar.muli arg13 c16_i32_57
  let v81 : BitVec 32 := Scalar.addi c0_i32_58 v80
  let v82 : Index := Scalar.indexCast v81
  ![v82.toNat]
def k1_off10 (i : grid1.Coords) (k1_t1 : Fin k1_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_22 : BitVec 32 := 0#32
  let c1_i32_23 : BitVec 32 := 1#32
  let arg12 : BitVec 32 := Scf.iv c0_i32_22 c1_i32_23 k1_t1
  let c2_i32_33 : BitVec 32 := 2#32
  let v52 : BitVec 32 := Scalar.muli arg12 c2_i32_33
  let c1_i32_34 : BitVec 32 := 1#32
  let v53 : BitVec 32 := Scalar.addi v52 c1_i32_34
  let c32_i32_52 : BitVec 32 := 32#32
  let v69 : BitVec 32 := Scalar.muli v53 c32_i32_52
  let v70 : BitVec 32 := Scalar.addi v1 v69
  let c3200_i32_53 : BitVec 32 := 3200#32
  let v71 : BitVec 32 := Scalar.muli v70 c3200_i32_53
  ![v71.toNat]
def k1_cond6 (i : grid1.Coords) (k1_t1 : Fin k1_t1_loop.trips) : BitVec 1 :=
  let c0_i32_22 : BitVec 32 := 0#32
  let c1_i32_23 : BitVec 32 := 1#32
  let arg12 : BitVec 32 := Scf.iv c0_i32_22 c1_i32_23 k1_t1
  let c2_i32_33 : BitVec 32 := 2#32
  let v52 : BitVec 32 := Scalar.muli arg12 c2_i32_33
  let c1_i32_34 : BitVec 32 := 1#32
  let v53 : BitVec 32 := Scalar.addi v52 c1_i32_34
  let c2_i32_38 : BitVec 32 := 2#32
  let v60 : BitVec 32 := Scalar.addi v53 c2_i32_38
  let c500_i32 : BitVec 32 := 500#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v2 : BitVec 32 := Scalar.subi c500_i32 v1
  let c32_i32 : BitVec 32 := 32#32
  let v3 : BitVec 32 := Scalar.addi v2 c32_i32
  let c1_i32 : BitVec 32 := 1#32
  let v4 : BitVec 32 := Scalar.subi v3 c1_i32
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c32_i32_0 : BitVec 32 := 32#32
  let c0_i32_2 : BitVec 32 := 0#32
  let v11 : BitVec 1 := Scalar.cmpi .sgt c32_i32_0 c0_i32_2
  let v12 : BitVec 32 := Scalar.extui v11
  let c0_i32_3 : BitVec 32 := 0#32
  let v13 : BitVec 1 := Scalar.cmpi .slt c32_i32_0 c0_i32_3
  let v14 : BitVec 32 := Scalar.extui v13
  let v15 : BitVec 32 := Scalar.subi v12 v14
  let v16 : BitVec 1 := Scalar.cmpi .ne v10 v15
  let v17 : BitVec 32 := Scalar.remsi v4 c32_i32_0
  let c0_i32_4 : BitVec 32 := 0#32
  let v18 : BitVec 1 := Scalar.cmpi .ne v17 c0_i32_4
  let v19 : BitVec 1 := Scalar.andi v16 v18
  let v5 : BitVec 32 := Scalar.divsi v4 c32_i32_0
  let c1_i32_5 : BitVec 32 := 1#32
  let v20 : BitVec 32 := Scalar.subi v5 c1_i32_5
  let v21 : BitVec 32 := Scalar.select v19 v20 v5
  let v61 : BitVec 1 := Scalar.cmpi .slt v60 v21
  let v62 : BitVec 32 := Scalar.extui v61
  let c0_i32_39 : BitVec 32 := 0#32
  let v63 : BitVec 1 := Scalar.cmpi .ne v62 c0_i32_39
  v63

def k1_off11 (i : grid1.Coords) (k1_t1 : Fin k1_t1_loop.trips) : Fin 2 → Nat :=
  let c1_i32_45 : BitVec 32 := 1#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_22 : BitVec 32 := 0#32
  let c1_i32_23 : BitVec 32 := 1#32
  let arg12 : BitVec 32 := Scf.iv c0_i32_22 c1_i32_23 k1_t1
  let c2_i32_33 : BitVec 32 := 2#32
  let v52 : BitVec 32 := Scalar.muli arg12 c2_i32_33
  let c1_i32_34 : BitVec 32 := 1#32
  let v53 : BitVec 32 := Scalar.addi v52 c1_i32_34
  let c2_i32_40 : BitVec 32 := 2#32
  let v64 : BitVec 32 := Scalar.addi v53 c2_i32_40
  let c32_i32_41 : BitVec 32 := 32#32
  let v65 : BitVec 32 := Scalar.muli v64 c32_i32_41
  let v66 : BitVec 32 := Scalar.addi v1 v65
  let c3200_i32_42 : BitVec 32 := 3200#32
  let v67 : BitVec 32 := Scalar.muli v66 c3200_i32_42
  ![1, v67.toNat]
def k1_cond7 (i : grid1.Coords) : BitVec 1 :=
  let c500_i32 : BitVec 32 := 500#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v2 : BitVec 32 := Scalar.subi c500_i32 v1
  let c32_i32 : BitVec 32 := 32#32
  let v3 : BitVec 32 := Scalar.addi v2 c32_i32
  let c1_i32 : BitVec 32 := 1#32
  let v4 : BitVec 32 := Scalar.subi v3 c1_i32
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c32_i32_0 : BitVec 32 := 32#32
  let c0_i32_2 : BitVec 32 := 0#32
  let v11 : BitVec 1 := Scalar.cmpi .sgt c32_i32_0 c0_i32_2
  let v12 : BitVec 32 := Scalar.extui v11
  let c0_i32_3 : BitVec 32 := 0#32
  let v13 : BitVec 1 := Scalar.cmpi .slt c32_i32_0 c0_i32_3
  let v14 : BitVec 32 := Scalar.extui v13
  let v15 : BitVec 32 := Scalar.subi v12 v14
  let v16 : BitVec 1 := Scalar.cmpi .ne v10 v15
  let v17 : BitVec 32 := Scalar.remsi v4 c32_i32_0
  let c0_i32_4 : BitVec 32 := 0#32
  let v18 : BitVec 1 := Scalar.cmpi .ne v17 c0_i32_4
  let v19 : BitVec 1 := Scalar.andi v16 v18
  let v5 : BitVec 32 := Scalar.divsi v4 c32_i32_0
  let c1_i32_5 : BitVec 32 := 1#32
  let v20 : BitVec 32 := Scalar.subi v5 c1_i32_5
  let v21 : BitVec 32 := Scalar.select v19 v20 v5
  let c14_i32 : BitVec 32 := 14#32
  let v35 : BitVec 1 := Scalar.cmpi .sgt v21 c14_i32
  let v36 : BitVec 32 := Scalar.extui v35
  let c0_i32_25 : BitVec 32 := 0#32
  let v37 : BitVec 1 := Scalar.cmpi .ne v36 c0_i32_25
  v37

def k1_off12 (i : grid1.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c448_i32 : BitVec 32 := 448#32
  let v41 : BitVec 32 := Scalar.addi v1 c448_i32
  let c3200_i32_27 : BitVec 32 := 3200#32
  let v42 : BitVec 32 := Scalar.muli v41 c3200_i32_27
  ![v42.toNat]
def k1_cond8 (i : grid1.Coords) : BitVec 1 :=
  let c500_i32 : BitVec 32 := 500#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v2 : BitVec 32 := Scalar.subi c500_i32 v1
  let c32_i32 : BitVec 32 := 32#32
  let v3 : BitVec 32 := Scalar.addi v2 c32_i32
  let c1_i32 : BitVec 32 := 1#32
  let v4 : BitVec 32 := Scalar.subi v3 c1_i32
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c32_i32_0 : BitVec 32 := 32#32
  let c0_i32_2 : BitVec 32 := 0#32
  let v11 : BitVec 1 := Scalar.cmpi .sgt c32_i32_0 c0_i32_2
  let v12 : BitVec 32 := Scalar.extui v11
  let c0_i32_3 : BitVec 32 := 0#32
  let v13 : BitVec 1 := Scalar.cmpi .slt c32_i32_0 c0_i32_3
  let v14 : BitVec 32 := Scalar.extui v13
  let v15 : BitVec 32 := Scalar.subi v12 v14
  let v16 : BitVec 1 := Scalar.cmpi .ne v10 v15
  let v17 : BitVec 32 := Scalar.remsi v4 c32_i32_0
  let c0_i32_4 : BitVec 32 := 0#32
  let v18 : BitVec 1 := Scalar.cmpi .ne v17 c0_i32_4
  let v19 : BitVec 1 := Scalar.andi v16 v18
  let v5 : BitVec 32 := Scalar.divsi v4 c32_i32_0
  let c1_i32_5 : BitVec 32 := 1#32
  let v20 : BitVec 32 := Scalar.subi v5 c1_i32_5
  let v21 : BitVec 32 := Scalar.select v19 v20 v5
  let c15_i32 : BitVec 32 := 15#32
  let v38 : BitVec 1 := Scalar.cmpi .sgt v21 c15_i32
  let v39 : BitVec 32 := Scalar.extui v38
  let c0_i32_26 : BitVec 32 := 0#32
  let v40 : BitVec 1 := Scalar.cmpi .ne v39 c0_i32_26
  v40

def k1_off13 (i : grid1.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c480_i32 : BitVec 32 := 480#32
  let v41 : BitVec 32 := Scalar.addi v1 c480_i32
  let c3200_i32_27 : BitVec 32 := 3200#32
  let v42 : BitVec 32 := Scalar.muli v41 c3200_i32_27
  ![v42.toNat]
abbrev grid2 : Pipeline.Grid := ⟨2, ![2, 16], ![false, false]⟩

def k2_off1 (i : grid2.Coords) (c0_i32_6 : BitVec 32) : Fin 2 → Nat :=
  let c2_i32_9 : BitVec 32 := 2#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v22 : BitVec 32 := Scalar.addi v1 c0_i32_6
  let c3200_i32 : BitVec 32 := 3200#32
  let v23 : BitVec 32 := Scalar.muli v22 c3200_i32
  ![2, v23.toNat]
@[reducible] def k2_t1_loop : Scf.Loop 32 :=
  let c0_i32_22 : BitVec 32 := 0#32
  let c8_i32 : BitVec 32 := 8#32
  let v34 : BitVec 32 := Scalar.addi c0_i32_22 c8_i32
  let c1_i32_23 : BitVec 32 := 1#32
  ⟨c0_i32_22, v34, c1_i32_23⟩
def k2_cond1 (k2_t1 : Fin k2_t1_loop.trips) : BitVec 1 :=
  let c0_i32_22 : BitVec 32 := 0#32
  let c1_i32_23 : BitVec 32 := 1#32
  let arg12 : BitVec 32 := Scf.iv c0_i32_22 c1_i32_23 k2_t1
  let c2_i32_27 : BitVec 32 := 2#32
  let v41 : BitVec 32 := Scalar.muli arg12 c2_i32_27
  let c2_i32_28 : BitVec 32 := 2#32
  let v42 : BitVec 1 := Scalar.cmpi .sge v41 c2_i32_28
  let v43 : BitVec 32 := Scalar.extui v42
  let c0_i32_29 : BitVec 32 := 0#32
  let v44 : BitVec 1 := Scalar.cmpi .ne v43 c0_i32_29
  v44

def k2_off2 (i : grid2.Coords) (k2_t1 : Fin k2_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_22 : BitVec 32 := 0#32
  let c1_i32_23 : BitVec 32 := 1#32
  let arg12 : BitVec 32 := Scf.iv c0_i32_22 c1_i32_23 k2_t1
  let c2_i32_27 : BitVec 32 := 2#32
  let v41 : BitVec 32 := Scalar.muli arg12 c2_i32_27
  let c2_i32_40 : BitVec 32 := 2#32
  let v64 : BitVec 32 := Scalar.subi v41 c2_i32_40
  let c32_i32_41 : BitVec 32 := 32#32
  let v65 : BitVec 32 := Scalar.muli v64 c32_i32_41
  let v66 : BitVec 32 := Scalar.addi v1 v65
  let c3200_i32_42 : BitVec 32 := 3200#32
  let v67 : BitVec 32 := Scalar.muli v66 c3200_i32_42
  ![v67.toNat]
def k2_cond2 (i : grid2.Coords) (k2_t1 : Fin k2_t1_loop.trips) : BitVec 1 :=
  let c0_i32_22 : BitVec 32 := 0#32
  let c1_i32_23 : BitVec 32 := 1#32
  let arg12 : BitVec 32 := Scf.iv c0_i32_22 c1_i32_23 k2_t1
  let c2_i32_27 : BitVec 32 := 2#32
  let v41 : BitVec 32 := Scalar.muli arg12 c2_i32_27
  let c500_i32 : BitVec 32 := 500#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v2 : BitVec 32 := Scalar.subi c500_i32 v1
  let c32_i32 : BitVec 32 := 32#32
  let v3 : BitVec 32 := Scalar.addi v2 c32_i32
  let c1_i32 : BitVec 32 := 1#32
  let v4 : BitVec 32 := Scalar.subi v3 c1_i32
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c32_i32_0 : BitVec 32 := 32#32
  let c0_i32_2 : BitVec 32 := 0#32
  let v11 : BitVec 1 := Scalar.cmpi .sgt c32_i32_0 c0_i32_2
  let v12 : BitVec 32 := Scalar.extui v11
  let c0_i32_3 : BitVec 32 := 0#32
  let v13 : BitVec 1 := Scalar.cmpi .slt c32_i32_0 c0_i32_3
  let v14 : BitVec 32 := Scalar.extui v13
  let v15 : BitVec 32 := Scalar.subi v12 v14
  let v16 : BitVec 1 := Scalar.cmpi .ne v10 v15
  let v17 : BitVec 32 := Scalar.remsi v4 c32_i32_0
  let c0_i32_4 : BitVec 32 := 0#32
  let v18 : BitVec 1 := Scalar.cmpi .ne v17 c0_i32_4
  let v19 : BitVec 1 := Scalar.andi v16 v18
  let v5 : BitVec 32 := Scalar.divsi v4 c32_i32_0
  let c1_i32_5 : BitVec 32 := 1#32
  let v20 : BitVec 32 := Scalar.subi v5 c1_i32_5
  let v21 : BitVec 32 := Scalar.select v19 v20 v5
  let v45 : BitVec 1 := Scalar.cmpi .slt v41 v21
  let v46 : BitVec 32 := Scalar.extui v45
  let c0_i32_30 : BitVec 32 := 0#32
  let v47 : BitVec 1 := Scalar.cmpi .ne v46 c0_i32_30
  v47

@[reducible] def k2_t2_loop : Scf.Loop 32 :=
  let c0_i32_49 : BitVec 32 := 0#32
  let c200_i32 : BitVec 32 := 200#32
  let v68 : BitVec 32 := Scalar.addi c0_i32_49 c200_i32
  let c1_i32_50 : BitVec 32 := 1#32
  ⟨c0_i32_49, v68, c1_i32_50⟩
def k2_off3 (k2_t2 : Fin k2_t2_loop.trips) : Fin 2 → Nat :=
  let c0_i32_56 : BitVec 32 := 0#32
  let v77 : Index := Scalar.indexCast c0_i32_56
  let c0_i32_49 : BitVec 32 := 0#32
  let c1_i32_50 : BitVec 32 := 1#32
  let arg13 : BitVec 32 := Scf.iv c0_i32_49 c1_i32_50 k2_t2
  let c16_i32 : BitVec 32 := 16#32
  let v76 : BitVec 32 := Scalar.muli arg13 c16_i32
  let v78 : Index := Scalar.indexCast v76
  ![0, v78.toNat]
def k2_off4 (k2_t2 : Fin k2_t2_loop.trips) : Fin 1 → Nat :=
  let c0_i32_58 : BitVec 32 := 0#32
  let c0_i32_49 : BitVec 32 := 0#32
  let c1_i32_50 : BitVec 32 := 1#32
  let arg13 : BitVec 32 := Scf.iv c0_i32_49 c1_i32_50 k2_t2
  let c16_i32_57 : BitVec 32 := 16#32
  let v80 : BitVec 32 := Scalar.muli arg13 c16_i32_57
  let v81 : BitVec 32 := Scalar.addi c0_i32_58 v80
  let v82 : Index := Scalar.indexCast v81
  ![v82.toNat]
def k2_off5 (i : grid2.Coords) (k2_t1 : Fin k2_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_22 : BitVec 32 := 0#32
  let c1_i32_23 : BitVec 32 := 1#32
  let arg12 : BitVec 32 := Scf.iv c0_i32_22 c1_i32_23 k2_t1
  let c2_i32_27 : BitVec 32 := 2#32
  let v41 : BitVec 32 := Scalar.muli arg12 c2_i32_27
  let c32_i32_52 : BitVec 32 := 32#32
  let v69 : BitVec 32 := Scalar.muli v41 c32_i32_52
  let v70 : BitVec 32 := Scalar.addi v1 v69
  let c3200_i32_53 : BitVec 32 := 3200#32
  let v71 : BitVec 32 := Scalar.muli v70 c3200_i32_53
  ![v71.toNat]
def k2_cond3 (i : grid2.Coords) (k2_t1 : Fin k2_t1_loop.trips) : BitVec 1 :=
  let c0_i32_22 : BitVec 32 := 0#32
  let c1_i32_23 : BitVec 32 := 1#32
  let arg12 : BitVec 32 := Scf.iv c0_i32_22 c1_i32_23 k2_t1
  let c2_i32_27 : BitVec 32 := 2#32
  let v41 : BitVec 32 := Scalar.muli arg12 c2_i32_27
  let c2_i32_31 : BitVec 32 := 2#32
  let v48 : BitVec 32 := Scalar.addi v41 c2_i32_31
  let c500_i32 : BitVec 32 := 500#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v2 : BitVec 32 := Scalar.subi c500_i32 v1
  let c32_i32 : BitVec 32 := 32#32
  let v3 : BitVec 32 := Scalar.addi v2 c32_i32
  let c1_i32 : BitVec 32 := 1#32
  let v4 : BitVec 32 := Scalar.subi v3 c1_i32
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c32_i32_0 : BitVec 32 := 32#32
  let c0_i32_2 : BitVec 32 := 0#32
  let v11 : BitVec 1 := Scalar.cmpi .sgt c32_i32_0 c0_i32_2
  let v12 : BitVec 32 := Scalar.extui v11
  let c0_i32_3 : BitVec 32 := 0#32
  let v13 : BitVec 1 := Scalar.cmpi .slt c32_i32_0 c0_i32_3
  let v14 : BitVec 32 := Scalar.extui v13
  let v15 : BitVec 32 := Scalar.subi v12 v14
  let v16 : BitVec 1 := Scalar.cmpi .ne v10 v15
  let v17 : BitVec 32 := Scalar.remsi v4 c32_i32_0
  let c0_i32_4 : BitVec 32 := 0#32
  let v18 : BitVec 1 := Scalar.cmpi .ne v17 c0_i32_4
  let v19 : BitVec 1 := Scalar.andi v16 v18
  let v5 : BitVec 32 := Scalar.divsi v4 c32_i32_0
  let c1_i32_5 : BitVec 32 := 1#32
  let v20 : BitVec 32 := Scalar.subi v5 c1_i32_5
  let v21 : BitVec 32 := Scalar.select v19 v20 v5
  let v49 : BitVec 1 := Scalar.cmpi .slt v48 v21
  let v50 : BitVec 32 := Scalar.extui v49
  let c0_i32_32 : BitVec 32 := 0#32
  let v51 : BitVec 1 := Scalar.cmpi .ne v50 c0_i32_32
  v51

def k2_off6 (i : grid2.Coords) (k2_t1 : Fin k2_t1_loop.trips) : Fin 2 → Nat :=
  let c2_i32_45 : BitVec 32 := 2#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_22 : BitVec 32 := 0#32
  let c1_i32_23 : BitVec 32 := 1#32
  let arg12 : BitVec 32 := Scf.iv c0_i32_22 c1_i32_23 k2_t1
  let c2_i32_27 : BitVec 32 := 2#32
  let v41 : BitVec 32 := Scalar.muli arg12 c2_i32_27
  let c2_i32_40 : BitVec 32 := 2#32
  let v64 : BitVec 32 := Scalar.addi v41 c2_i32_40
  let c32_i32_41 : BitVec 32 := 32#32
  let v65 : BitVec 32 := Scalar.muli v64 c32_i32_41
  let v66 : BitVec 32 := Scalar.addi v1 v65
  let c3200_i32_42 : BitVec 32 := 3200#32
  let v67 : BitVec 32 := Scalar.muli v66 c3200_i32_42
  ![2, v67.toNat]
def k2_cond4 (k2_t1 : Fin k2_t1_loop.trips) : BitVec 1 :=
  let c0_i32_22 : BitVec 32 := 0#32
  let c1_i32_23 : BitVec 32 := 1#32
  let arg12 : BitVec 32 := Scf.iv c0_i32_22 c1_i32_23 k2_t1
  let c2_i32_33 : BitVec 32 := 2#32
  let v52 : BitVec 32 := Scalar.muli arg12 c2_i32_33
  let c1_i32_34 : BitVec 32 := 1#32
  let v53 : BitVec 32 := Scalar.addi v52 c1_i32_34
  let c2_i32_35 : BitVec 32 := 2#32
  let v54 : BitVec 1 := Scalar.cmpi .sge v53 c2_i32_35
  let v55 : BitVec 32 := Scalar.extui v54
  let c0_i32_36 : BitVec 32 := 0#32
  let v56 : BitVec 1 := Scalar.cmpi .ne v55 c0_i32_36
  v56

def k2_off7 (i : grid2.Coords) (k2_t1 : Fin k2_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_22 : BitVec 32 := 0#32
  let c1_i32_23 : BitVec 32 := 1#32
  let arg12 : BitVec 32 := Scf.iv c0_i32_22 c1_i32_23 k2_t1
  let c2_i32_33 : BitVec 32 := 2#32
  let v52 : BitVec 32 := Scalar.muli arg12 c2_i32_33
  let c1_i32_34 : BitVec 32 := 1#32
  let v53 : BitVec 32 := Scalar.addi v52 c1_i32_34
  let c2_i32_40 : BitVec 32 := 2#32
  let v64 : BitVec 32 := Scalar.subi v53 c2_i32_40
  let c32_i32_41 : BitVec 32 := 32#32
  let v65 : BitVec 32 := Scalar.muli v64 c32_i32_41
  let v66 : BitVec 32 := Scalar.addi v1 v65
  let c3200_i32_42 : BitVec 32 := 3200#32
  let v67 : BitVec 32 := Scalar.muli v66 c3200_i32_42
  ![v67.toNat]
def k2_cond5 (i : grid2.Coords) (k2_t1 : Fin k2_t1_loop.trips) : BitVec 1 :=
  let c0_i32_22 : BitVec 32 := 0#32
  let c1_i32_23 : BitVec 32 := 1#32
  let arg12 : BitVec 32 := Scf.iv c0_i32_22 c1_i32_23 k2_t1
  let c2_i32_33 : BitVec 32 := 2#32
  let v52 : BitVec 32 := Scalar.muli arg12 c2_i32_33
  let c1_i32_34 : BitVec 32 := 1#32
  let v53 : BitVec 32 := Scalar.addi v52 c1_i32_34
  let c500_i32 : BitVec 32 := 500#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v2 : BitVec 32 := Scalar.subi c500_i32 v1
  let c32_i32 : BitVec 32 := 32#32
  let v3 : BitVec 32 := Scalar.addi v2 c32_i32
  let c1_i32 : BitVec 32 := 1#32
  let v4 : BitVec 32 := Scalar.subi v3 c1_i32
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c32_i32_0 : BitVec 32 := 32#32
  let c0_i32_2 : BitVec 32 := 0#32
  let v11 : BitVec 1 := Scalar.cmpi .sgt c32_i32_0 c0_i32_2
  let v12 : BitVec 32 := Scalar.extui v11
  let c0_i32_3 : BitVec 32 := 0#32
  let v13 : BitVec 1 := Scalar.cmpi .slt c32_i32_0 c0_i32_3
  let v14 : BitVec 32 := Scalar.extui v13
  let v15 : BitVec 32 := Scalar.subi v12 v14
  let v16 : BitVec 1 := Scalar.cmpi .ne v10 v15
  let v17 : BitVec 32 := Scalar.remsi v4 c32_i32_0
  let c0_i32_4 : BitVec 32 := 0#32
  let v18 : BitVec 1 := Scalar.cmpi .ne v17 c0_i32_4
  let v19 : BitVec 1 := Scalar.andi v16 v18
  let v5 : BitVec 32 := Scalar.divsi v4 c32_i32_0
  let c1_i32_5 : BitVec 32 := 1#32
  let v20 : BitVec 32 := Scalar.subi v5 c1_i32_5
  let v21 : BitVec 32 := Scalar.select v19 v20 v5
  let v57 : BitVec 1 := Scalar.cmpi .slt v53 v21
  let v58 : BitVec 32 := Scalar.extui v57
  let c0_i32_37 : BitVec 32 := 0#32
  let v59 : BitVec 1 := Scalar.cmpi .ne v58 c0_i32_37
  v59

@[reducible] def k2_t3_loop : Scf.Loop 32 :=
  let c0_i32_49 : BitVec 32 := 0#32
  let c200_i32 : BitVec 32 := 200#32
  let v68 : BitVec 32 := Scalar.addi c0_i32_49 c200_i32
  let c1_i32_50 : BitVec 32 := 1#32
  ⟨c0_i32_49, v68, c1_i32_50⟩
def k2_off8 (k2_t3 : Fin k2_t3_loop.trips) : Fin 2 → Nat :=
  let c0_i32_56 : BitVec 32 := 0#32
  let v77 : Index := Scalar.indexCast c0_i32_56
  let c0_i32_49 : BitVec 32 := 0#32
  let c1_i32_50 : BitVec 32 := 1#32
  let arg13 : BitVec 32 := Scf.iv c0_i32_49 c1_i32_50 k2_t3
  let c16_i32 : BitVec 32 := 16#32
  let v76 : BitVec 32 := Scalar.muli arg13 c16_i32
  let v78 : Index := Scalar.indexCast v76
  ![0, v78.toNat]
def k2_off9 (k2_t3 : Fin k2_t3_loop.trips) : Fin 1 → Nat :=
  let c0_i32_58 : BitVec 32 := 0#32
  let c0_i32_49 : BitVec 32 := 0#32
  let c1_i32_50 : BitVec 32 := 1#32
  let arg13 : BitVec 32 := Scf.iv c0_i32_49 c1_i32_50 k2_t3
  let c16_i32_57 : BitVec 32 := 16#32
  let v80 : BitVec 32 := Scalar.muli arg13 c16_i32_57
  let v81 : BitVec 32 := Scalar.addi c0_i32_58 v80
  let v82 : Index := Scalar.indexCast v81
  ![v82.toNat]
def k2_off10 (i : grid2.Coords) (k2_t1 : Fin k2_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_22 : BitVec 32 := 0#32
  let c1_i32_23 : BitVec 32 := 1#32
  let arg12 : BitVec 32 := Scf.iv c0_i32_22 c1_i32_23 k2_t1
  let c2_i32_33 : BitVec 32 := 2#32
  let v52 : BitVec 32 := Scalar.muli arg12 c2_i32_33
  let c1_i32_34 : BitVec 32 := 1#32
  let v53 : BitVec 32 := Scalar.addi v52 c1_i32_34
  let c32_i32_52 : BitVec 32 := 32#32
  let v69 : BitVec 32 := Scalar.muli v53 c32_i32_52
  let v70 : BitVec 32 := Scalar.addi v1 v69
  let c3200_i32_53 : BitVec 32 := 3200#32
  let v71 : BitVec 32 := Scalar.muli v70 c3200_i32_53
  ![v71.toNat]
def k2_cond6 (i : grid2.Coords) (k2_t1 : Fin k2_t1_loop.trips) : BitVec 1 :=
  let c0_i32_22 : BitVec 32 := 0#32
  let c1_i32_23 : BitVec 32 := 1#32
  let arg12 : BitVec 32 := Scf.iv c0_i32_22 c1_i32_23 k2_t1
  let c2_i32_33 : BitVec 32 := 2#32
  let v52 : BitVec 32 := Scalar.muli arg12 c2_i32_33
  let c1_i32_34 : BitVec 32 := 1#32
  let v53 : BitVec 32 := Scalar.addi v52 c1_i32_34
  let c2_i32_38 : BitVec 32 := 2#32
  let v60 : BitVec 32 := Scalar.addi v53 c2_i32_38
  let c500_i32 : BitVec 32 := 500#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v2 : BitVec 32 := Scalar.subi c500_i32 v1
  let c32_i32 : BitVec 32 := 32#32
  let v3 : BitVec 32 := Scalar.addi v2 c32_i32
  let c1_i32 : BitVec 32 := 1#32
  let v4 : BitVec 32 := Scalar.subi v3 c1_i32
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c32_i32_0 : BitVec 32 := 32#32
  let c0_i32_2 : BitVec 32 := 0#32
  let v11 : BitVec 1 := Scalar.cmpi .sgt c32_i32_0 c0_i32_2
  let v12 : BitVec 32 := Scalar.extui v11
  let c0_i32_3 : BitVec 32 := 0#32
  let v13 : BitVec 1 := Scalar.cmpi .slt c32_i32_0 c0_i32_3
  let v14 : BitVec 32 := Scalar.extui v13
  let v15 : BitVec 32 := Scalar.subi v12 v14
  let v16 : BitVec 1 := Scalar.cmpi .ne v10 v15
  let v17 : BitVec 32 := Scalar.remsi v4 c32_i32_0
  let c0_i32_4 : BitVec 32 := 0#32
  let v18 : BitVec 1 := Scalar.cmpi .ne v17 c0_i32_4
  let v19 : BitVec 1 := Scalar.andi v16 v18
  let v5 : BitVec 32 := Scalar.divsi v4 c32_i32_0
  let c1_i32_5 : BitVec 32 := 1#32
  let v20 : BitVec 32 := Scalar.subi v5 c1_i32_5
  let v21 : BitVec 32 := Scalar.select v19 v20 v5
  let v61 : BitVec 1 := Scalar.cmpi .slt v60 v21
  let v62 : BitVec 32 := Scalar.extui v61
  let c0_i32_39 : BitVec 32 := 0#32
  let v63 : BitVec 1 := Scalar.cmpi .ne v62 c0_i32_39
  v63

def k2_off11 (i : grid2.Coords) (k2_t1 : Fin k2_t1_loop.trips) : Fin 2 → Nat :=
  let c2_i32_45 : BitVec 32 := 2#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_22 : BitVec 32 := 0#32
  let c1_i32_23 : BitVec 32 := 1#32
  let arg12 : BitVec 32 := Scf.iv c0_i32_22 c1_i32_23 k2_t1
  let c2_i32_33 : BitVec 32 := 2#32
  let v52 : BitVec 32 := Scalar.muli arg12 c2_i32_33
  let c1_i32_34 : BitVec 32 := 1#32
  let v53 : BitVec 32 := Scalar.addi v52 c1_i32_34
  let c2_i32_40 : BitVec 32 := 2#32
  let v64 : BitVec 32 := Scalar.addi v53 c2_i32_40
  let c32_i32_41 : BitVec 32 := 32#32
  let v65 : BitVec 32 := Scalar.muli v64 c32_i32_41
  let v66 : BitVec 32 := Scalar.addi v1 v65
  let c3200_i32_42 : BitVec 32 := 3200#32
  let v67 : BitVec 32 := Scalar.muli v66 c3200_i32_42
  ![2, v67.toNat]
def k2_cond7 (i : grid2.Coords) : BitVec 1 :=
  let c500_i32 : BitVec 32 := 500#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v2 : BitVec 32 := Scalar.subi c500_i32 v1
  let c32_i32 : BitVec 32 := 32#32
  let v3 : BitVec 32 := Scalar.addi v2 c32_i32
  let c1_i32 : BitVec 32 := 1#32
  let v4 : BitVec 32 := Scalar.subi v3 c1_i32
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c32_i32_0 : BitVec 32 := 32#32
  let c0_i32_2 : BitVec 32 := 0#32
  let v11 : BitVec 1 := Scalar.cmpi .sgt c32_i32_0 c0_i32_2
  let v12 : BitVec 32 := Scalar.extui v11
  let c0_i32_3 : BitVec 32 := 0#32
  let v13 : BitVec 1 := Scalar.cmpi .slt c32_i32_0 c0_i32_3
  let v14 : BitVec 32 := Scalar.extui v13
  let v15 : BitVec 32 := Scalar.subi v12 v14
  let v16 : BitVec 1 := Scalar.cmpi .ne v10 v15
  let v17 : BitVec 32 := Scalar.remsi v4 c32_i32_0
  let c0_i32_4 : BitVec 32 := 0#32
  let v18 : BitVec 1 := Scalar.cmpi .ne v17 c0_i32_4
  let v19 : BitVec 1 := Scalar.andi v16 v18
  let v5 : BitVec 32 := Scalar.divsi v4 c32_i32_0
  let c1_i32_5 : BitVec 32 := 1#32
  let v20 : BitVec 32 := Scalar.subi v5 c1_i32_5
  let v21 : BitVec 32 := Scalar.select v19 v20 v5
  let c14_i32 : BitVec 32 := 14#32
  let v35 : BitVec 1 := Scalar.cmpi .sgt v21 c14_i32
  let v36 : BitVec 32 := Scalar.extui v35
  let c0_i32_25 : BitVec 32 := 0#32
  let v37 : BitVec 1 := Scalar.cmpi .ne v36 c0_i32_25
  v37

def k2_off12 (i : grid2.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c448_i32 : BitVec 32 := 448#32
  let v41 : BitVec 32 := Scalar.addi v1 c448_i32
  let c3200_i32_27 : BitVec 32 := 3200#32
  let v42 : BitVec 32 := Scalar.muli v41 c3200_i32_27
  ![v42.toNat]
def k2_cond8 (i : grid2.Coords) : BitVec 1 :=
  let c500_i32 : BitVec 32 := 500#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v2 : BitVec 32 := Scalar.subi c500_i32 v1
  let c32_i32 : BitVec 32 := 32#32
  let v3 : BitVec 32 := Scalar.addi v2 c32_i32
  let c1_i32 : BitVec 32 := 1#32
  let v4 : BitVec 32 := Scalar.subi v3 c1_i32
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c32_i32_0 : BitVec 32 := 32#32
  let c0_i32_2 : BitVec 32 := 0#32
  let v11 : BitVec 1 := Scalar.cmpi .sgt c32_i32_0 c0_i32_2
  let v12 : BitVec 32 := Scalar.extui v11
  let c0_i32_3 : BitVec 32 := 0#32
  let v13 : BitVec 1 := Scalar.cmpi .slt c32_i32_0 c0_i32_3
  let v14 : BitVec 32 := Scalar.extui v13
  let v15 : BitVec 32 := Scalar.subi v12 v14
  let v16 : BitVec 1 := Scalar.cmpi .ne v10 v15
  let v17 : BitVec 32 := Scalar.remsi v4 c32_i32_0
  let c0_i32_4 : BitVec 32 := 0#32
  let v18 : BitVec 1 := Scalar.cmpi .ne v17 c0_i32_4
  let v19 : BitVec 1 := Scalar.andi v16 v18
  let v5 : BitVec 32 := Scalar.divsi v4 c32_i32_0
  let c1_i32_5 : BitVec 32 := 1#32
  let v20 : BitVec 32 := Scalar.subi v5 c1_i32_5
  let v21 : BitVec 32 := Scalar.select v19 v20 v5
  let c15_i32 : BitVec 32 := 15#32
  let v38 : BitVec 1 := Scalar.cmpi .sgt v21 c15_i32
  let v39 : BitVec 32 := Scalar.extui v38
  let c0_i32_26 : BitVec 32 := 0#32
  let v40 : BitVec 1 := Scalar.cmpi .ne v39 c0_i32_26
  v40

def k2_off13 (i : grid2.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c480_i32 : BitVec 32 := 480#32
  let v41 : BitVec 32 := Scalar.addi v1 c480_i32
  let c3200_i32_27 : BitVec 32 := 3200#32
  let v42 : BitVec 32 := Scalar.muli v41 c3200_i32_27
  ![v42.toNat]
abbrev grid3 : Pipeline.Grid := ⟨2, ![2, 16], ![false, false]⟩

def k3_off1 (i : grid3.Coords) (c0_i32_6 : BitVec 32) : Fin 2 → Nat :=
  let c3_i32 : BitVec 32 := 3#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v22 : BitVec 32 := Scalar.addi v1 c0_i32_6
  let c3200_i32 : BitVec 32 := 3200#32
  let v23 : BitVec 32 := Scalar.muli v22 c3200_i32
  ![3, v23.toNat]
@[reducible] def k3_t1_loop : Scf.Loop 32 :=
  let c0_i32_21 : BitVec 32 := 0#32
  let c8_i32 : BitVec 32 := 8#32
  let v34 : BitVec 32 := Scalar.addi c0_i32_21 c8_i32
  let c1_i32_22 : BitVec 32 := 1#32
  ⟨c0_i32_21, v34, c1_i32_22⟩
def k3_cond1 (k3_t1 : Fin k3_t1_loop.trips) : BitVec 1 :=
  let c0_i32_21 : BitVec 32 := 0#32
  let c1_i32_22 : BitVec 32 := 1#32
  let arg12 : BitVec 32 := Scf.iv c0_i32_21 c1_i32_22 k3_t1
  let c2_i32_26 : BitVec 32 := 2#32
  let v41 : BitVec 32 := Scalar.muli arg12 c2_i32_26
  let c2_i32_27 : BitVec 32 := 2#32
  let v42 : BitVec 1 := Scalar.cmpi .sge v41 c2_i32_27
  let v43 : BitVec 32 := Scalar.extui v42
  let c0_i32_28 : BitVec 32 := 0#32
  let v44 : BitVec 1 := Scalar.cmpi .ne v43 c0_i32_28
  v44

def k3_off2 (i : grid3.Coords) (k3_t1 : Fin k3_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_21 : BitVec 32 := 0#32
  let c1_i32_22 : BitVec 32 := 1#32
  let arg12 : BitVec 32 := Scf.iv c0_i32_21 c1_i32_22 k3_t1
  let c2_i32_26 : BitVec 32 := 2#32
  let v41 : BitVec 32 := Scalar.muli arg12 c2_i32_26
  let c2_i32_39 : BitVec 32 := 2#32
  let v64 : BitVec 32 := Scalar.subi v41 c2_i32_39
  let c32_i32_40 : BitVec 32 := 32#32
  let v65 : BitVec 32 := Scalar.muli v64 c32_i32_40
  let v66 : BitVec 32 := Scalar.addi v1 v65
  let c3200_i32_41 : BitVec 32 := 3200#32
  let v67 : BitVec 32 := Scalar.muli v66 c3200_i32_41
  ![v67.toNat]
def k3_cond2 (i : grid3.Coords) (k3_t1 : Fin k3_t1_loop.trips) : BitVec 1 :=
  let c0_i32_21 : BitVec 32 := 0#32
  let c1_i32_22 : BitVec 32 := 1#32
  let arg12 : BitVec 32 := Scf.iv c0_i32_21 c1_i32_22 k3_t1
  let c2_i32_26 : BitVec 32 := 2#32
  let v41 : BitVec 32 := Scalar.muli arg12 c2_i32_26
  let c500_i32 : BitVec 32 := 500#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v2 : BitVec 32 := Scalar.subi c500_i32 v1
  let c32_i32 : BitVec 32 := 32#32
  let v3 : BitVec 32 := Scalar.addi v2 c32_i32
  let c1_i32 : BitVec 32 := 1#32
  let v4 : BitVec 32 := Scalar.subi v3 c1_i32
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c32_i32_0 : BitVec 32 := 32#32
  let c0_i32_2 : BitVec 32 := 0#32
  let v11 : BitVec 1 := Scalar.cmpi .sgt c32_i32_0 c0_i32_2
  let v12 : BitVec 32 := Scalar.extui v11
  let c0_i32_3 : BitVec 32 := 0#32
  let v13 : BitVec 1 := Scalar.cmpi .slt c32_i32_0 c0_i32_3
  let v14 : BitVec 32 := Scalar.extui v13
  let v15 : BitVec 32 := Scalar.subi v12 v14
  let v16 : BitVec 1 := Scalar.cmpi .ne v10 v15
  let v17 : BitVec 32 := Scalar.remsi v4 c32_i32_0
  let c0_i32_4 : BitVec 32 := 0#32
  let v18 : BitVec 1 := Scalar.cmpi .ne v17 c0_i32_4
  let v19 : BitVec 1 := Scalar.andi v16 v18
  let v5 : BitVec 32 := Scalar.divsi v4 c32_i32_0
  let c1_i32_5 : BitVec 32 := 1#32
  let v20 : BitVec 32 := Scalar.subi v5 c1_i32_5
  let v21 : BitVec 32 := Scalar.select v19 v20 v5
  let v45 : BitVec 1 := Scalar.cmpi .slt v41 v21
  let v46 : BitVec 32 := Scalar.extui v45
  let c0_i32_29 : BitVec 32 := 0#32
  let v47 : BitVec 1 := Scalar.cmpi .ne v46 c0_i32_29
  v47

@[reducible] def k3_t2_loop : Scf.Loop 32 :=
  let c0_i32_48 : BitVec 32 := 0#32
  let c200_i32 : BitVec 32 := 200#32
  let v68 : BitVec 32 := Scalar.addi c0_i32_48 c200_i32
  let c1_i32_49 : BitVec 32 := 1#32
  ⟨c0_i32_48, v68, c1_i32_49⟩
def k3_off3 (k3_t2 : Fin k3_t2_loop.trips) : Fin 2 → Nat :=
  let c0_i32_55 : BitVec 32 := 0#32
  let v77 : Index := Scalar.indexCast c0_i32_55
  let c0_i32_48 : BitVec 32 := 0#32
  let c1_i32_49 : BitVec 32 := 1#32
  let arg13 : BitVec 32 := Scf.iv c0_i32_48 c1_i32_49 k3_t2
  let c16_i32 : BitVec 32 := 16#32
  let v76 : BitVec 32 := Scalar.muli arg13 c16_i32
  let v78 : Index := Scalar.indexCast v76
  ![0, v78.toNat]
def k3_off4 (k3_t2 : Fin k3_t2_loop.trips) : Fin 1 → Nat :=
  let c0_i32_57 : BitVec 32 := 0#32
  let c0_i32_48 : BitVec 32 := 0#32
  let c1_i32_49 : BitVec 32 := 1#32
  let arg13 : BitVec 32 := Scf.iv c0_i32_48 c1_i32_49 k3_t2
  let c16_i32_56 : BitVec 32 := 16#32
  let v80 : BitVec 32 := Scalar.muli arg13 c16_i32_56
  let v81 : BitVec 32 := Scalar.addi c0_i32_57 v80
  let v82 : Index := Scalar.indexCast v81
  ![v82.toNat]
def k3_off5 (i : grid3.Coords) (k3_t1 : Fin k3_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_21 : BitVec 32 := 0#32
  let c1_i32_22 : BitVec 32 := 1#32
  let arg12 : BitVec 32 := Scf.iv c0_i32_21 c1_i32_22 k3_t1
  let c2_i32_26 : BitVec 32 := 2#32
  let v41 : BitVec 32 := Scalar.muli arg12 c2_i32_26
  let c32_i32_51 : BitVec 32 := 32#32
  let v69 : BitVec 32 := Scalar.muli v41 c32_i32_51
  let v70 : BitVec 32 := Scalar.addi v1 v69
  let c3200_i32_52 : BitVec 32 := 3200#32
  let v71 : BitVec 32 := Scalar.muli v70 c3200_i32_52
  ![v71.toNat]
def k3_cond3 (i : grid3.Coords) (k3_t1 : Fin k3_t1_loop.trips) : BitVec 1 :=
  let c0_i32_21 : BitVec 32 := 0#32
  let c1_i32_22 : BitVec 32 := 1#32
  let arg12 : BitVec 32 := Scf.iv c0_i32_21 c1_i32_22 k3_t1
  let c2_i32_26 : BitVec 32 := 2#32
  let v41 : BitVec 32 := Scalar.muli arg12 c2_i32_26
  let c2_i32_30 : BitVec 32 := 2#32
  let v48 : BitVec 32 := Scalar.addi v41 c2_i32_30
  let c500_i32 : BitVec 32 := 500#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v2 : BitVec 32 := Scalar.subi c500_i32 v1
  let c32_i32 : BitVec 32 := 32#32
  let v3 : BitVec 32 := Scalar.addi v2 c32_i32
  let c1_i32 : BitVec 32 := 1#32
  let v4 : BitVec 32 := Scalar.subi v3 c1_i32
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c32_i32_0 : BitVec 32 := 32#32
  let c0_i32_2 : BitVec 32 := 0#32
  let v11 : BitVec 1 := Scalar.cmpi .sgt c32_i32_0 c0_i32_2
  let v12 : BitVec 32 := Scalar.extui v11
  let c0_i32_3 : BitVec 32 := 0#32
  let v13 : BitVec 1 := Scalar.cmpi .slt c32_i32_0 c0_i32_3
  let v14 : BitVec 32 := Scalar.extui v13
  let v15 : BitVec 32 := Scalar.subi v12 v14
  let v16 : BitVec 1 := Scalar.cmpi .ne v10 v15
  let v17 : BitVec 32 := Scalar.remsi v4 c32_i32_0
  let c0_i32_4 : BitVec 32 := 0#32
  let v18 : BitVec 1 := Scalar.cmpi .ne v17 c0_i32_4
  let v19 : BitVec 1 := Scalar.andi v16 v18
  let v5 : BitVec 32 := Scalar.divsi v4 c32_i32_0
  let c1_i32_5 : BitVec 32 := 1#32
  let v20 : BitVec 32 := Scalar.subi v5 c1_i32_5
  let v21 : BitVec 32 := Scalar.select v19 v20 v5
  let v49 : BitVec 1 := Scalar.cmpi .slt v48 v21
  let v50 : BitVec 32 := Scalar.extui v49
  let c0_i32_31 : BitVec 32 := 0#32
  let v51 : BitVec 1 := Scalar.cmpi .ne v50 c0_i32_31
  v51

def k3_off6 (i : grid3.Coords) (k3_t1 : Fin k3_t1_loop.trips) : Fin 2 → Nat :=
  let c3_i32_44 : BitVec 32 := 3#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_21 : BitVec 32 := 0#32
  let c1_i32_22 : BitVec 32 := 1#32
  let arg12 : BitVec 32 := Scf.iv c0_i32_21 c1_i32_22 k3_t1
  let c2_i32_26 : BitVec 32 := 2#32
  let v41 : BitVec 32 := Scalar.muli arg12 c2_i32_26
  let c2_i32_39 : BitVec 32 := 2#32
  let v64 : BitVec 32 := Scalar.addi v41 c2_i32_39
  let c32_i32_40 : BitVec 32 := 32#32
  let v65 : BitVec 32 := Scalar.muli v64 c32_i32_40
  let v66 : BitVec 32 := Scalar.addi v1 v65
  let c3200_i32_41 : BitVec 32 := 3200#32
  let v67 : BitVec 32 := Scalar.muli v66 c3200_i32_41
  ![3, v67.toNat]
def k3_cond4 (k3_t1 : Fin k3_t1_loop.trips) : BitVec 1 :=
  let c0_i32_21 : BitVec 32 := 0#32
  let c1_i32_22 : BitVec 32 := 1#32
  let arg12 : BitVec 32 := Scf.iv c0_i32_21 c1_i32_22 k3_t1
  let c2_i32_32 : BitVec 32 := 2#32
  let v52 : BitVec 32 := Scalar.muli arg12 c2_i32_32
  let c1_i32_33 : BitVec 32 := 1#32
  let v53 : BitVec 32 := Scalar.addi v52 c1_i32_33
  let c2_i32_34 : BitVec 32 := 2#32
  let v54 : BitVec 1 := Scalar.cmpi .sge v53 c2_i32_34
  let v55 : BitVec 32 := Scalar.extui v54
  let c0_i32_35 : BitVec 32 := 0#32
  let v56 : BitVec 1 := Scalar.cmpi .ne v55 c0_i32_35
  v56

def k3_off7 (i : grid3.Coords) (k3_t1 : Fin k3_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_21 : BitVec 32 := 0#32
  let c1_i32_22 : BitVec 32 := 1#32
  let arg12 : BitVec 32 := Scf.iv c0_i32_21 c1_i32_22 k3_t1
  let c2_i32_32 : BitVec 32 := 2#32
  let v52 : BitVec 32 := Scalar.muli arg12 c2_i32_32
  let c1_i32_33 : BitVec 32 := 1#32
  let v53 : BitVec 32 := Scalar.addi v52 c1_i32_33
  let c2_i32_39 : BitVec 32 := 2#32
  let v64 : BitVec 32 := Scalar.subi v53 c2_i32_39
  let c32_i32_40 : BitVec 32 := 32#32
  let v65 : BitVec 32 := Scalar.muli v64 c32_i32_40
  let v66 : BitVec 32 := Scalar.addi v1 v65
  let c3200_i32_41 : BitVec 32 := 3200#32
  let v67 : BitVec 32 := Scalar.muli v66 c3200_i32_41
  ![v67.toNat]
def k3_cond5 (i : grid3.Coords) (k3_t1 : Fin k3_t1_loop.trips) : BitVec 1 :=
  let c0_i32_21 : BitVec 32 := 0#32
  let c1_i32_22 : BitVec 32 := 1#32
  let arg12 : BitVec 32 := Scf.iv c0_i32_21 c1_i32_22 k3_t1
  let c2_i32_32 : BitVec 32 := 2#32
  let v52 : BitVec 32 := Scalar.muli arg12 c2_i32_32
  let c1_i32_33 : BitVec 32 := 1#32
  let v53 : BitVec 32 := Scalar.addi v52 c1_i32_33
  let c500_i32 : BitVec 32 := 500#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v2 : BitVec 32 := Scalar.subi c500_i32 v1
  let c32_i32 : BitVec 32 := 32#32
  let v3 : BitVec 32 := Scalar.addi v2 c32_i32
  let c1_i32 : BitVec 32 := 1#32
  let v4 : BitVec 32 := Scalar.subi v3 c1_i32
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c32_i32_0 : BitVec 32 := 32#32
  let c0_i32_2 : BitVec 32 := 0#32
  let v11 : BitVec 1 := Scalar.cmpi .sgt c32_i32_0 c0_i32_2
  let v12 : BitVec 32 := Scalar.extui v11
  let c0_i32_3 : BitVec 32 := 0#32
  let v13 : BitVec 1 := Scalar.cmpi .slt c32_i32_0 c0_i32_3
  let v14 : BitVec 32 := Scalar.extui v13
  let v15 : BitVec 32 := Scalar.subi v12 v14
  let v16 : BitVec 1 := Scalar.cmpi .ne v10 v15
  let v17 : BitVec 32 := Scalar.remsi v4 c32_i32_0
  let c0_i32_4 : BitVec 32 := 0#32
  let v18 : BitVec 1 := Scalar.cmpi .ne v17 c0_i32_4
  let v19 : BitVec 1 := Scalar.andi v16 v18
  let v5 : BitVec 32 := Scalar.divsi v4 c32_i32_0
  let c1_i32_5 : BitVec 32 := 1#32
  let v20 : BitVec 32 := Scalar.subi v5 c1_i32_5
  let v21 : BitVec 32 := Scalar.select v19 v20 v5
  let v57 : BitVec 1 := Scalar.cmpi .slt v53 v21
  let v58 : BitVec 32 := Scalar.extui v57
  let c0_i32_36 : BitVec 32 := 0#32
  let v59 : BitVec 1 := Scalar.cmpi .ne v58 c0_i32_36
  v59

@[reducible] def k3_t3_loop : Scf.Loop 32 :=
  let c0_i32_48 : BitVec 32 := 0#32
  let c200_i32 : BitVec 32 := 200#32
  let v68 : BitVec 32 := Scalar.addi c0_i32_48 c200_i32
  let c1_i32_49 : BitVec 32 := 1#32
  ⟨c0_i32_48, v68, c1_i32_49⟩
def k3_off8 (k3_t3 : Fin k3_t3_loop.trips) : Fin 2 → Nat :=
  let c0_i32_55 : BitVec 32 := 0#32
  let v77 : Index := Scalar.indexCast c0_i32_55
  let c0_i32_48 : BitVec 32 := 0#32
  let c1_i32_49 : BitVec 32 := 1#32
  let arg13 : BitVec 32 := Scf.iv c0_i32_48 c1_i32_49 k3_t3
  let c16_i32 : BitVec 32 := 16#32
  let v76 : BitVec 32 := Scalar.muli arg13 c16_i32
  let v78 : Index := Scalar.indexCast v76
  ![0, v78.toNat]
def k3_off9 (k3_t3 : Fin k3_t3_loop.trips) : Fin 1 → Nat :=
  let c0_i32_57 : BitVec 32 := 0#32
  let c0_i32_48 : BitVec 32 := 0#32
  let c1_i32_49 : BitVec 32 := 1#32
  let arg13 : BitVec 32 := Scf.iv c0_i32_48 c1_i32_49 k3_t3
  let c16_i32_56 : BitVec 32 := 16#32
  let v80 : BitVec 32 := Scalar.muli arg13 c16_i32_56
  let v81 : BitVec 32 := Scalar.addi c0_i32_57 v80
  let v82 : Index := Scalar.indexCast v81
  ![v82.toNat]
def k3_off10 (i : grid3.Coords) (k3_t1 : Fin k3_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_21 : BitVec 32 := 0#32
  let c1_i32_22 : BitVec 32 := 1#32
  let arg12 : BitVec 32 := Scf.iv c0_i32_21 c1_i32_22 k3_t1
  let c2_i32_32 : BitVec 32 := 2#32
  let v52 : BitVec 32 := Scalar.muli arg12 c2_i32_32
  let c1_i32_33 : BitVec 32 := 1#32
  let v53 : BitVec 32 := Scalar.addi v52 c1_i32_33
  let c32_i32_51 : BitVec 32 := 32#32
  let v69 : BitVec 32 := Scalar.muli v53 c32_i32_51
  let v70 : BitVec 32 := Scalar.addi v1 v69
  let c3200_i32_52 : BitVec 32 := 3200#32
  let v71 : BitVec 32 := Scalar.muli v70 c3200_i32_52
  ![v71.toNat]
def k3_cond6 (i : grid3.Coords) (k3_t1 : Fin k3_t1_loop.trips) : BitVec 1 :=
  let c0_i32_21 : BitVec 32 := 0#32
  let c1_i32_22 : BitVec 32 := 1#32
  let arg12 : BitVec 32 := Scf.iv c0_i32_21 c1_i32_22 k3_t1
  let c2_i32_32 : BitVec 32 := 2#32
  let v52 : BitVec 32 := Scalar.muli arg12 c2_i32_32
  let c1_i32_33 : BitVec 32 := 1#32
  let v53 : BitVec 32 := Scalar.addi v52 c1_i32_33
  let c2_i32_37 : BitVec 32 := 2#32
  let v60 : BitVec 32 := Scalar.addi v53 c2_i32_37
  let c500_i32 : BitVec 32 := 500#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v2 : BitVec 32 := Scalar.subi c500_i32 v1
  let c32_i32 : BitVec 32 := 32#32
  let v3 : BitVec 32 := Scalar.addi v2 c32_i32
  let c1_i32 : BitVec 32 := 1#32
  let v4 : BitVec 32 := Scalar.subi v3 c1_i32
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c32_i32_0 : BitVec 32 := 32#32
  let c0_i32_2 : BitVec 32 := 0#32
  let v11 : BitVec 1 := Scalar.cmpi .sgt c32_i32_0 c0_i32_2
  let v12 : BitVec 32 := Scalar.extui v11
  let c0_i32_3 : BitVec 32 := 0#32
  let v13 : BitVec 1 := Scalar.cmpi .slt c32_i32_0 c0_i32_3
  let v14 : BitVec 32 := Scalar.extui v13
  let v15 : BitVec 32 := Scalar.subi v12 v14
  let v16 : BitVec 1 := Scalar.cmpi .ne v10 v15
  let v17 : BitVec 32 := Scalar.remsi v4 c32_i32_0
  let c0_i32_4 : BitVec 32 := 0#32
  let v18 : BitVec 1 := Scalar.cmpi .ne v17 c0_i32_4
  let v19 : BitVec 1 := Scalar.andi v16 v18
  let v5 : BitVec 32 := Scalar.divsi v4 c32_i32_0
  let c1_i32_5 : BitVec 32 := 1#32
  let v20 : BitVec 32 := Scalar.subi v5 c1_i32_5
  let v21 : BitVec 32 := Scalar.select v19 v20 v5
  let v61 : BitVec 1 := Scalar.cmpi .slt v60 v21
  let v62 : BitVec 32 := Scalar.extui v61
  let c0_i32_38 : BitVec 32 := 0#32
  let v63 : BitVec 1 := Scalar.cmpi .ne v62 c0_i32_38
  v63

def k3_off11 (i : grid3.Coords) (k3_t1 : Fin k3_t1_loop.trips) : Fin 2 → Nat :=
  let c3_i32_44 : BitVec 32 := 3#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_21 : BitVec 32 := 0#32
  let c1_i32_22 : BitVec 32 := 1#32
  let arg12 : BitVec 32 := Scf.iv c0_i32_21 c1_i32_22 k3_t1
  let c2_i32_32 : BitVec 32 := 2#32
  let v52 : BitVec 32 := Scalar.muli arg12 c2_i32_32
  let c1_i32_33 : BitVec 32 := 1#32
  let v53 : BitVec 32 := Scalar.addi v52 c1_i32_33
  let c2_i32_39 : BitVec 32 := 2#32
  let v64 : BitVec 32 := Scalar.addi v53 c2_i32_39
  let c32_i32_40 : BitVec 32 := 32#32
  let v65 : BitVec 32 := Scalar.muli v64 c32_i32_40
  let v66 : BitVec 32 := Scalar.addi v1 v65
  let c3200_i32_41 : BitVec 32 := 3200#32
  let v67 : BitVec 32 := Scalar.muli v66 c3200_i32_41
  ![3, v67.toNat]
def k3_cond7 (i : grid3.Coords) : BitVec 1 :=
  let c500_i32 : BitVec 32 := 500#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v2 : BitVec 32 := Scalar.subi c500_i32 v1
  let c32_i32 : BitVec 32 := 32#32
  let v3 : BitVec 32 := Scalar.addi v2 c32_i32
  let c1_i32 : BitVec 32 := 1#32
  let v4 : BitVec 32 := Scalar.subi v3 c1_i32
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c32_i32_0 : BitVec 32 := 32#32
  let c0_i32_2 : BitVec 32 := 0#32
  let v11 : BitVec 1 := Scalar.cmpi .sgt c32_i32_0 c0_i32_2
  let v12 : BitVec 32 := Scalar.extui v11
  let c0_i32_3 : BitVec 32 := 0#32
  let v13 : BitVec 1 := Scalar.cmpi .slt c32_i32_0 c0_i32_3
  let v14 : BitVec 32 := Scalar.extui v13
  let v15 : BitVec 32 := Scalar.subi v12 v14
  let v16 : BitVec 1 := Scalar.cmpi .ne v10 v15
  let v17 : BitVec 32 := Scalar.remsi v4 c32_i32_0
  let c0_i32_4 : BitVec 32 := 0#32
  let v18 : BitVec 1 := Scalar.cmpi .ne v17 c0_i32_4
  let v19 : BitVec 1 := Scalar.andi v16 v18
  let v5 : BitVec 32 := Scalar.divsi v4 c32_i32_0
  let c1_i32_5 : BitVec 32 := 1#32
  let v20 : BitVec 32 := Scalar.subi v5 c1_i32_5
  let v21 : BitVec 32 := Scalar.select v19 v20 v5
  let c14_i32 : BitVec 32 := 14#32
  let v35 : BitVec 1 := Scalar.cmpi .sgt v21 c14_i32
  let v36 : BitVec 32 := Scalar.extui v35
  let c0_i32_24 : BitVec 32 := 0#32
  let v37 : BitVec 1 := Scalar.cmpi .ne v36 c0_i32_24
  v37

def k3_off12 (i : grid3.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c448_i32 : BitVec 32 := 448#32
  let v41 : BitVec 32 := Scalar.addi v1 c448_i32
  let c3200_i32_26 : BitVec 32 := 3200#32
  let v42 : BitVec 32 := Scalar.muli v41 c3200_i32_26
  ![v42.toNat]
def k3_cond8 (i : grid3.Coords) : BitVec 1 :=
  let c500_i32 : BitVec 32 := 500#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v2 : BitVec 32 := Scalar.subi c500_i32 v1
  let c32_i32 : BitVec 32 := 32#32
  let v3 : BitVec 32 := Scalar.addi v2 c32_i32
  let c1_i32 : BitVec 32 := 1#32
  let v4 : BitVec 32 := Scalar.subi v3 c1_i32
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c32_i32_0 : BitVec 32 := 32#32
  let c0_i32_2 : BitVec 32 := 0#32
  let v11 : BitVec 1 := Scalar.cmpi .sgt c32_i32_0 c0_i32_2
  let v12 : BitVec 32 := Scalar.extui v11
  let c0_i32_3 : BitVec 32 := 0#32
  let v13 : BitVec 1 := Scalar.cmpi .slt c32_i32_0 c0_i32_3
  let v14 : BitVec 32 := Scalar.extui v13
  let v15 : BitVec 32 := Scalar.subi v12 v14
  let v16 : BitVec 1 := Scalar.cmpi .ne v10 v15
  let v17 : BitVec 32 := Scalar.remsi v4 c32_i32_0
  let c0_i32_4 : BitVec 32 := 0#32
  let v18 : BitVec 1 := Scalar.cmpi .ne v17 c0_i32_4
  let v19 : BitVec 1 := Scalar.andi v16 v18
  let v5 : BitVec 32 := Scalar.divsi v4 c32_i32_0
  let c1_i32_5 : BitVec 32 := 1#32
  let v20 : BitVec 32 := Scalar.subi v5 c1_i32_5
  let v21 : BitVec 32 := Scalar.select v19 v20 v5
  let c15_i32 : BitVec 32 := 15#32
  let v38 : BitVec 1 := Scalar.cmpi .sgt v21 c15_i32
  let v39 : BitVec 32 := Scalar.extui v38
  let c0_i32_25 : BitVec 32 := 0#32
  let v40 : BitVec 1 := Scalar.cmpi .ne v39 c0_i32_25
  v40

def k3_off13 (i : grid3.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c480_i32 : BitVec 32 := 480#32
  let v41 : BitVec 32 := Scalar.addi v1 c480_i32
  let c3200_i32_26 : BitVec 32 := 3200#32
  let v42 : BitVec 32 := Scalar.muli v41 c3200_i32_26
  ![v42.toNat]
abbrev grid4 : Pipeline.Grid := ⟨2, ![2, 16], ![false, false]⟩

def k4_off1 (i : grid4.Coords) (c0_i32_6 : BitVec 32) : Fin 2 → Nat :=
  let c4_i32 : BitVec 32 := 4#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v22 : BitVec 32 := Scalar.addi v1 c0_i32_6
  let c3200_i32 : BitVec 32 := 3200#32
  let v23 : BitVec 32 := Scalar.muli v22 c3200_i32
  ![4, v23.toNat]
@[reducible] def k4_t1_loop : Scf.Loop 32 :=
  let c0_i32_21 : BitVec 32 := 0#32
  let c8_i32 : BitVec 32 := 8#32
  let v34 : BitVec 32 := Scalar.addi c0_i32_21 c8_i32
  let c1_i32_22 : BitVec 32 := 1#32
  ⟨c0_i32_21, v34, c1_i32_22⟩
def k4_cond1 (k4_t1 : Fin k4_t1_loop.trips) : BitVec 1 :=
  let c0_i32_21 : BitVec 32 := 0#32
  let c1_i32_22 : BitVec 32 := 1#32
  let arg12 : BitVec 32 := Scf.iv c0_i32_21 c1_i32_22 k4_t1
  let c2_i32_26 : BitVec 32 := 2#32
  let v41 : BitVec 32 := Scalar.muli arg12 c2_i32_26
  let c2_i32_27 : BitVec 32 := 2#32
  let v42 : BitVec 1 := Scalar.cmpi .sge v41 c2_i32_27
  let v43 : BitVec 32 := Scalar.extui v42
  let c0_i32_28 : BitVec 32 := 0#32
  let v44 : BitVec 1 := Scalar.cmpi .ne v43 c0_i32_28
  v44

def k4_off2 (i : grid4.Coords) (k4_t1 : Fin k4_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_21 : BitVec 32 := 0#32
  let c1_i32_22 : BitVec 32 := 1#32
  let arg12 : BitVec 32 := Scf.iv c0_i32_21 c1_i32_22 k4_t1
  let c2_i32_26 : BitVec 32 := 2#32
  let v41 : BitVec 32 := Scalar.muli arg12 c2_i32_26
  let c2_i32_39 : BitVec 32 := 2#32
  let v64 : BitVec 32 := Scalar.subi v41 c2_i32_39
  let c32_i32_40 : BitVec 32 := 32#32
  let v65 : BitVec 32 := Scalar.muli v64 c32_i32_40
  let v66 : BitVec 32 := Scalar.addi v1 v65
  let c3200_i32_41 : BitVec 32 := 3200#32
  let v67 : BitVec 32 := Scalar.muli v66 c3200_i32_41
  ![v67.toNat]
def k4_cond2 (i : grid4.Coords) (k4_t1 : Fin k4_t1_loop.trips) : BitVec 1 :=
  let c0_i32_21 : BitVec 32 := 0#32
  let c1_i32_22 : BitVec 32 := 1#32
  let arg12 : BitVec 32 := Scf.iv c0_i32_21 c1_i32_22 k4_t1
  let c2_i32_26 : BitVec 32 := 2#32
  let v41 : BitVec 32 := Scalar.muli arg12 c2_i32_26
  let c500_i32 : BitVec 32 := 500#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v2 : BitVec 32 := Scalar.subi c500_i32 v1
  let c32_i32 : BitVec 32 := 32#32
  let v3 : BitVec 32 := Scalar.addi v2 c32_i32
  let c1_i32 : BitVec 32 := 1#32
  let v4 : BitVec 32 := Scalar.subi v3 c1_i32
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c32_i32_0 : BitVec 32 := 32#32
  let c0_i32_2 : BitVec 32 := 0#32
  let v11 : BitVec 1 := Scalar.cmpi .sgt c32_i32_0 c0_i32_2
  let v12 : BitVec 32 := Scalar.extui v11
  let c0_i32_3 : BitVec 32 := 0#32
  let v13 : BitVec 1 := Scalar.cmpi .slt c32_i32_0 c0_i32_3
  let v14 : BitVec 32 := Scalar.extui v13
  let v15 : BitVec 32 := Scalar.subi v12 v14
  let v16 : BitVec 1 := Scalar.cmpi .ne v10 v15
  let v17 : BitVec 32 := Scalar.remsi v4 c32_i32_0
  let c0_i32_4 : BitVec 32 := 0#32
  let v18 : BitVec 1 := Scalar.cmpi .ne v17 c0_i32_4
  let v19 : BitVec 1 := Scalar.andi v16 v18
  let v5 : BitVec 32 := Scalar.divsi v4 c32_i32_0
  let c1_i32_5 : BitVec 32 := 1#32
  let v20 : BitVec 32 := Scalar.subi v5 c1_i32_5
  let v21 : BitVec 32 := Scalar.select v19 v20 v5
  let v45 : BitVec 1 := Scalar.cmpi .slt v41 v21
  let v46 : BitVec 32 := Scalar.extui v45
  let c0_i32_29 : BitVec 32 := 0#32
  let v47 : BitVec 1 := Scalar.cmpi .ne v46 c0_i32_29
  v47

@[reducible] def k4_t2_loop : Scf.Loop 32 :=
  let c0_i32_48 : BitVec 32 := 0#32
  let c200_i32 : BitVec 32 := 200#32
  let v68 : BitVec 32 := Scalar.addi c0_i32_48 c200_i32
  let c1_i32_49 : BitVec 32 := 1#32
  ⟨c0_i32_48, v68, c1_i32_49⟩
def k4_off3 (k4_t2 : Fin k4_t2_loop.trips) : Fin 2 → Nat :=
  let c0_i32_55 : BitVec 32 := 0#32
  let v77 : Index := Scalar.indexCast c0_i32_55
  let c0_i32_48 : BitVec 32 := 0#32
  let c1_i32_49 : BitVec 32 := 1#32
  let arg13 : BitVec 32 := Scf.iv c0_i32_48 c1_i32_49 k4_t2
  let c16_i32 : BitVec 32 := 16#32
  let v76 : BitVec 32 := Scalar.muli arg13 c16_i32
  let v78 : Index := Scalar.indexCast v76
  ![0, v78.toNat]
def k4_off4 (k4_t2 : Fin k4_t2_loop.trips) : Fin 1 → Nat :=
  let c0_i32_57 : BitVec 32 := 0#32
  let c0_i32_48 : BitVec 32 := 0#32
  let c1_i32_49 : BitVec 32 := 1#32
  let arg13 : BitVec 32 := Scf.iv c0_i32_48 c1_i32_49 k4_t2
  let c16_i32_56 : BitVec 32 := 16#32
  let v80 : BitVec 32 := Scalar.muli arg13 c16_i32_56
  let v81 : BitVec 32 := Scalar.addi c0_i32_57 v80
  let v82 : Index := Scalar.indexCast v81
  ![v82.toNat]
def k4_off5 (i : grid4.Coords) (k4_t1 : Fin k4_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_21 : BitVec 32 := 0#32
  let c1_i32_22 : BitVec 32 := 1#32
  let arg12 : BitVec 32 := Scf.iv c0_i32_21 c1_i32_22 k4_t1
  let c2_i32_26 : BitVec 32 := 2#32
  let v41 : BitVec 32 := Scalar.muli arg12 c2_i32_26
  let c32_i32_51 : BitVec 32 := 32#32
  let v69 : BitVec 32 := Scalar.muli v41 c32_i32_51
  let v70 : BitVec 32 := Scalar.addi v1 v69
  let c3200_i32_52 : BitVec 32 := 3200#32
  let v71 : BitVec 32 := Scalar.muli v70 c3200_i32_52
  ![v71.toNat]
def k4_cond3 (i : grid4.Coords) (k4_t1 : Fin k4_t1_loop.trips) : BitVec 1 :=
  let c0_i32_21 : BitVec 32 := 0#32
  let c1_i32_22 : BitVec 32 := 1#32
  let arg12 : BitVec 32 := Scf.iv c0_i32_21 c1_i32_22 k4_t1
  let c2_i32_26 : BitVec 32 := 2#32
  let v41 : BitVec 32 := Scalar.muli arg12 c2_i32_26
  let c2_i32_30 : BitVec 32 := 2#32
  let v48 : BitVec 32 := Scalar.addi v41 c2_i32_30
  let c500_i32 : BitVec 32 := 500#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v2 : BitVec 32 := Scalar.subi c500_i32 v1
  let c32_i32 : BitVec 32 := 32#32
  let v3 : BitVec 32 := Scalar.addi v2 c32_i32
  let c1_i32 : BitVec 32 := 1#32
  let v4 : BitVec 32 := Scalar.subi v3 c1_i32
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c32_i32_0 : BitVec 32 := 32#32
  let c0_i32_2 : BitVec 32 := 0#32
  let v11 : BitVec 1 := Scalar.cmpi .sgt c32_i32_0 c0_i32_2
  let v12 : BitVec 32 := Scalar.extui v11
  let c0_i32_3 : BitVec 32 := 0#32
  let v13 : BitVec 1 := Scalar.cmpi .slt c32_i32_0 c0_i32_3
  let v14 : BitVec 32 := Scalar.extui v13
  let v15 : BitVec 32 := Scalar.subi v12 v14
  let v16 : BitVec 1 := Scalar.cmpi .ne v10 v15
  let v17 : BitVec 32 := Scalar.remsi v4 c32_i32_0
  let c0_i32_4 : BitVec 32 := 0#32
  let v18 : BitVec 1 := Scalar.cmpi .ne v17 c0_i32_4
  let v19 : BitVec 1 := Scalar.andi v16 v18
  let v5 : BitVec 32 := Scalar.divsi v4 c32_i32_0
  let c1_i32_5 : BitVec 32 := 1#32
  let v20 : BitVec 32 := Scalar.subi v5 c1_i32_5
  let v21 : BitVec 32 := Scalar.select v19 v20 v5
  let v49 : BitVec 1 := Scalar.cmpi .slt v48 v21
  let v50 : BitVec 32 := Scalar.extui v49
  let c0_i32_31 : BitVec 32 := 0#32
  let v51 : BitVec 1 := Scalar.cmpi .ne v50 c0_i32_31
  v51

def k4_off6 (i : grid4.Coords) (k4_t1 : Fin k4_t1_loop.trips) : Fin 2 → Nat :=
  let c4_i32_44 : BitVec 32 := 4#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_21 : BitVec 32 := 0#32
  let c1_i32_22 : BitVec 32 := 1#32
  let arg12 : BitVec 32 := Scf.iv c0_i32_21 c1_i32_22 k4_t1
  let c2_i32_26 : BitVec 32 := 2#32
  let v41 : BitVec 32 := Scalar.muli arg12 c2_i32_26
  let c2_i32_39 : BitVec 32 := 2#32
  let v64 : BitVec 32 := Scalar.addi v41 c2_i32_39
  let c32_i32_40 : BitVec 32 := 32#32
  let v65 : BitVec 32 := Scalar.muli v64 c32_i32_40
  let v66 : BitVec 32 := Scalar.addi v1 v65
  let c3200_i32_41 : BitVec 32 := 3200#32
  let v67 : BitVec 32 := Scalar.muli v66 c3200_i32_41
  ![4, v67.toNat]
def k4_cond4 (k4_t1 : Fin k4_t1_loop.trips) : BitVec 1 :=
  let c0_i32_21 : BitVec 32 := 0#32
  let c1_i32_22 : BitVec 32 := 1#32
  let arg12 : BitVec 32 := Scf.iv c0_i32_21 c1_i32_22 k4_t1
  let c2_i32_32 : BitVec 32 := 2#32
  let v52 : BitVec 32 := Scalar.muli arg12 c2_i32_32
  let c1_i32_33 : BitVec 32 := 1#32
  let v53 : BitVec 32 := Scalar.addi v52 c1_i32_33
  let c2_i32_34 : BitVec 32 := 2#32
  let v54 : BitVec 1 := Scalar.cmpi .sge v53 c2_i32_34
  let v55 : BitVec 32 := Scalar.extui v54
  let c0_i32_35 : BitVec 32 := 0#32
  let v56 : BitVec 1 := Scalar.cmpi .ne v55 c0_i32_35
  v56

def k4_off7 (i : grid4.Coords) (k4_t1 : Fin k4_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_21 : BitVec 32 := 0#32
  let c1_i32_22 : BitVec 32 := 1#32
  let arg12 : BitVec 32 := Scf.iv c0_i32_21 c1_i32_22 k4_t1
  let c2_i32_32 : BitVec 32 := 2#32
  let v52 : BitVec 32 := Scalar.muli arg12 c2_i32_32
  let c1_i32_33 : BitVec 32 := 1#32
  let v53 : BitVec 32 := Scalar.addi v52 c1_i32_33
  let c2_i32_39 : BitVec 32 := 2#32
  let v64 : BitVec 32 := Scalar.subi v53 c2_i32_39
  let c32_i32_40 : BitVec 32 := 32#32
  let v65 : BitVec 32 := Scalar.muli v64 c32_i32_40
  let v66 : BitVec 32 := Scalar.addi v1 v65
  let c3200_i32_41 : BitVec 32 := 3200#32
  let v67 : BitVec 32 := Scalar.muli v66 c3200_i32_41
  ![v67.toNat]
def k4_cond5 (i : grid4.Coords) (k4_t1 : Fin k4_t1_loop.trips) : BitVec 1 :=
  let c0_i32_21 : BitVec 32 := 0#32
  let c1_i32_22 : BitVec 32 := 1#32
  let arg12 : BitVec 32 := Scf.iv c0_i32_21 c1_i32_22 k4_t1
  let c2_i32_32 : BitVec 32 := 2#32
  let v52 : BitVec 32 := Scalar.muli arg12 c2_i32_32
  let c1_i32_33 : BitVec 32 := 1#32
  let v53 : BitVec 32 := Scalar.addi v52 c1_i32_33
  let c500_i32 : BitVec 32 := 500#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v2 : BitVec 32 := Scalar.subi c500_i32 v1
  let c32_i32 : BitVec 32 := 32#32
  let v3 : BitVec 32 := Scalar.addi v2 c32_i32
  let c1_i32 : BitVec 32 := 1#32
  let v4 : BitVec 32 := Scalar.subi v3 c1_i32
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c32_i32_0 : BitVec 32 := 32#32
  let c0_i32_2 : BitVec 32 := 0#32
  let v11 : BitVec 1 := Scalar.cmpi .sgt c32_i32_0 c0_i32_2
  let v12 : BitVec 32 := Scalar.extui v11
  let c0_i32_3 : BitVec 32 := 0#32
  let v13 : BitVec 1 := Scalar.cmpi .slt c32_i32_0 c0_i32_3
  let v14 : BitVec 32 := Scalar.extui v13
  let v15 : BitVec 32 := Scalar.subi v12 v14
  let v16 : BitVec 1 := Scalar.cmpi .ne v10 v15
  let v17 : BitVec 32 := Scalar.remsi v4 c32_i32_0
  let c0_i32_4 : BitVec 32 := 0#32
  let v18 : BitVec 1 := Scalar.cmpi .ne v17 c0_i32_4
  let v19 : BitVec 1 := Scalar.andi v16 v18
  let v5 : BitVec 32 := Scalar.divsi v4 c32_i32_0
  let c1_i32_5 : BitVec 32 := 1#32
  let v20 : BitVec 32 := Scalar.subi v5 c1_i32_5
  let v21 : BitVec 32 := Scalar.select v19 v20 v5
  let v57 : BitVec 1 := Scalar.cmpi .slt v53 v21
  let v58 : BitVec 32 := Scalar.extui v57
  let c0_i32_36 : BitVec 32 := 0#32
  let v59 : BitVec 1 := Scalar.cmpi .ne v58 c0_i32_36
  v59

@[reducible] def k4_t3_loop : Scf.Loop 32 :=
  let c0_i32_48 : BitVec 32 := 0#32
  let c200_i32 : BitVec 32 := 200#32
  let v68 : BitVec 32 := Scalar.addi c0_i32_48 c200_i32
  let c1_i32_49 : BitVec 32 := 1#32
  ⟨c0_i32_48, v68, c1_i32_49⟩
def k4_off8 (k4_t3 : Fin k4_t3_loop.trips) : Fin 2 → Nat :=
  let c0_i32_55 : BitVec 32 := 0#32
  let v77 : Index := Scalar.indexCast c0_i32_55
  let c0_i32_48 : BitVec 32 := 0#32
  let c1_i32_49 : BitVec 32 := 1#32
  let arg13 : BitVec 32 := Scf.iv c0_i32_48 c1_i32_49 k4_t3
  let c16_i32 : BitVec 32 := 16#32
  let v76 : BitVec 32 := Scalar.muli arg13 c16_i32
  let v78 : Index := Scalar.indexCast v76
  ![0, v78.toNat]
def k4_off9 (k4_t3 : Fin k4_t3_loop.trips) : Fin 1 → Nat :=
  let c0_i32_57 : BitVec 32 := 0#32
  let c0_i32_48 : BitVec 32 := 0#32
  let c1_i32_49 : BitVec 32 := 1#32
  let arg13 : BitVec 32 := Scf.iv c0_i32_48 c1_i32_49 k4_t3
  let c16_i32_56 : BitVec 32 := 16#32
  let v80 : BitVec 32 := Scalar.muli arg13 c16_i32_56
  let v81 : BitVec 32 := Scalar.addi c0_i32_57 v80
  let v82 : Index := Scalar.indexCast v81
  ![v82.toNat]
def k4_off10 (i : grid4.Coords) (k4_t1 : Fin k4_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_21 : BitVec 32 := 0#32
  let c1_i32_22 : BitVec 32 := 1#32
  let arg12 : BitVec 32 := Scf.iv c0_i32_21 c1_i32_22 k4_t1
  let c2_i32_32 : BitVec 32 := 2#32
  let v52 : BitVec 32 := Scalar.muli arg12 c2_i32_32
  let c1_i32_33 : BitVec 32 := 1#32
  let v53 : BitVec 32 := Scalar.addi v52 c1_i32_33
  let c32_i32_51 : BitVec 32 := 32#32
  let v69 : BitVec 32 := Scalar.muli v53 c32_i32_51
  let v70 : BitVec 32 := Scalar.addi v1 v69
  let c3200_i32_52 : BitVec 32 := 3200#32
  let v71 : BitVec 32 := Scalar.muli v70 c3200_i32_52
  ![v71.toNat]
def k4_cond6 (i : grid4.Coords) (k4_t1 : Fin k4_t1_loop.trips) : BitVec 1 :=
  let c0_i32_21 : BitVec 32 := 0#32
  let c1_i32_22 : BitVec 32 := 1#32
  let arg12 : BitVec 32 := Scf.iv c0_i32_21 c1_i32_22 k4_t1
  let c2_i32_32 : BitVec 32 := 2#32
  let v52 : BitVec 32 := Scalar.muli arg12 c2_i32_32
  let c1_i32_33 : BitVec 32 := 1#32
  let v53 : BitVec 32 := Scalar.addi v52 c1_i32_33
  let c2_i32_37 : BitVec 32 := 2#32
  let v60 : BitVec 32 := Scalar.addi v53 c2_i32_37
  let c500_i32 : BitVec 32 := 500#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v2 : BitVec 32 := Scalar.subi c500_i32 v1
  let c32_i32 : BitVec 32 := 32#32
  let v3 : BitVec 32 := Scalar.addi v2 c32_i32
  let c1_i32 : BitVec 32 := 1#32
  let v4 : BitVec 32 := Scalar.subi v3 c1_i32
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c32_i32_0 : BitVec 32 := 32#32
  let c0_i32_2 : BitVec 32 := 0#32
  let v11 : BitVec 1 := Scalar.cmpi .sgt c32_i32_0 c0_i32_2
  let v12 : BitVec 32 := Scalar.extui v11
  let c0_i32_3 : BitVec 32 := 0#32
  let v13 : BitVec 1 := Scalar.cmpi .slt c32_i32_0 c0_i32_3
  let v14 : BitVec 32 := Scalar.extui v13
  let v15 : BitVec 32 := Scalar.subi v12 v14
  let v16 : BitVec 1 := Scalar.cmpi .ne v10 v15
  let v17 : BitVec 32 := Scalar.remsi v4 c32_i32_0
  let c0_i32_4 : BitVec 32 := 0#32
  let v18 : BitVec 1 := Scalar.cmpi .ne v17 c0_i32_4
  let v19 : BitVec 1 := Scalar.andi v16 v18
  let v5 : BitVec 32 := Scalar.divsi v4 c32_i32_0
  let c1_i32_5 : BitVec 32 := 1#32
  let v20 : BitVec 32 := Scalar.subi v5 c1_i32_5
  let v21 : BitVec 32 := Scalar.select v19 v20 v5
  let v61 : BitVec 1 := Scalar.cmpi .slt v60 v21
  let v62 : BitVec 32 := Scalar.extui v61
  let c0_i32_38 : BitVec 32 := 0#32
  let v63 : BitVec 1 := Scalar.cmpi .ne v62 c0_i32_38
  v63

def k4_off11 (i : grid4.Coords) (k4_t1 : Fin k4_t1_loop.trips) : Fin 2 → Nat :=
  let c4_i32_44 : BitVec 32 := 4#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_21 : BitVec 32 := 0#32
  let c1_i32_22 : BitVec 32 := 1#32
  let arg12 : BitVec 32 := Scf.iv c0_i32_21 c1_i32_22 k4_t1
  let c2_i32_32 : BitVec 32 := 2#32
  let v52 : BitVec 32 := Scalar.muli arg12 c2_i32_32
  let c1_i32_33 : BitVec 32 := 1#32
  let v53 : BitVec 32 := Scalar.addi v52 c1_i32_33
  let c2_i32_39 : BitVec 32 := 2#32
  let v64 : BitVec 32 := Scalar.addi v53 c2_i32_39
  let c32_i32_40 : BitVec 32 := 32#32
  let v65 : BitVec 32 := Scalar.muli v64 c32_i32_40
  let v66 : BitVec 32 := Scalar.addi v1 v65
  let c3200_i32_41 : BitVec 32 := 3200#32
  let v67 : BitVec 32 := Scalar.muli v66 c3200_i32_41
  ![4, v67.toNat]
def k4_cond7 (i : grid4.Coords) : BitVec 1 :=
  let c500_i32 : BitVec 32 := 500#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v2 : BitVec 32 := Scalar.subi c500_i32 v1
  let c32_i32 : BitVec 32 := 32#32
  let v3 : BitVec 32 := Scalar.addi v2 c32_i32
  let c1_i32 : BitVec 32 := 1#32
  let v4 : BitVec 32 := Scalar.subi v3 c1_i32
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c32_i32_0 : BitVec 32 := 32#32
  let c0_i32_2 : BitVec 32 := 0#32
  let v11 : BitVec 1 := Scalar.cmpi .sgt c32_i32_0 c0_i32_2
  let v12 : BitVec 32 := Scalar.extui v11
  let c0_i32_3 : BitVec 32 := 0#32
  let v13 : BitVec 1 := Scalar.cmpi .slt c32_i32_0 c0_i32_3
  let v14 : BitVec 32 := Scalar.extui v13
  let v15 : BitVec 32 := Scalar.subi v12 v14
  let v16 : BitVec 1 := Scalar.cmpi .ne v10 v15
  let v17 : BitVec 32 := Scalar.remsi v4 c32_i32_0
  let c0_i32_4 : BitVec 32 := 0#32
  let v18 : BitVec 1 := Scalar.cmpi .ne v17 c0_i32_4
  let v19 : BitVec 1 := Scalar.andi v16 v18
  let v5 : BitVec 32 := Scalar.divsi v4 c32_i32_0
  let c1_i32_5 : BitVec 32 := 1#32
  let v20 : BitVec 32 := Scalar.subi v5 c1_i32_5
  let v21 : BitVec 32 := Scalar.select v19 v20 v5
  let c14_i32 : BitVec 32 := 14#32
  let v35 : BitVec 1 := Scalar.cmpi .sgt v21 c14_i32
  let v36 : BitVec 32 := Scalar.extui v35
  let c0_i32_24 : BitVec 32 := 0#32
  let v37 : BitVec 1 := Scalar.cmpi .ne v36 c0_i32_24
  v37

def k4_off12 (i : grid4.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c448_i32 : BitVec 32 := 448#32
  let v41 : BitVec 32 := Scalar.addi v1 c448_i32
  let c3200_i32_26 : BitVec 32 := 3200#32
  let v42 : BitVec 32 := Scalar.muli v41 c3200_i32_26
  ![v42.toNat]
def k4_cond8 (i : grid4.Coords) : BitVec 1 :=
  let c500_i32 : BitVec 32 := 500#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v2 : BitVec 32 := Scalar.subi c500_i32 v1
  let c32_i32 : BitVec 32 := 32#32
  let v3 : BitVec 32 := Scalar.addi v2 c32_i32
  let c1_i32 : BitVec 32 := 1#32
  let v4 : BitVec 32 := Scalar.subi v3 c1_i32
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c32_i32_0 : BitVec 32 := 32#32
  let c0_i32_2 : BitVec 32 := 0#32
  let v11 : BitVec 1 := Scalar.cmpi .sgt c32_i32_0 c0_i32_2
  let v12 : BitVec 32 := Scalar.extui v11
  let c0_i32_3 : BitVec 32 := 0#32
  let v13 : BitVec 1 := Scalar.cmpi .slt c32_i32_0 c0_i32_3
  let v14 : BitVec 32 := Scalar.extui v13
  let v15 : BitVec 32 := Scalar.subi v12 v14
  let v16 : BitVec 1 := Scalar.cmpi .ne v10 v15
  let v17 : BitVec 32 := Scalar.remsi v4 c32_i32_0
  let c0_i32_4 : BitVec 32 := 0#32
  let v18 : BitVec 1 := Scalar.cmpi .ne v17 c0_i32_4
  let v19 : BitVec 1 := Scalar.andi v16 v18
  let v5 : BitVec 32 := Scalar.divsi v4 c32_i32_0
  let c1_i32_5 : BitVec 32 := 1#32
  let v20 : BitVec 32 := Scalar.subi v5 c1_i32_5
  let v21 : BitVec 32 := Scalar.select v19 v20 v5
  let c15_i32 : BitVec 32 := 15#32
  let v38 : BitVec 1 := Scalar.cmpi .sgt v21 c15_i32
  let v39 : BitVec 32 := Scalar.extui v38
  let c0_i32_25 : BitVec 32 := 0#32
  let v40 : BitVec 1 := Scalar.cmpi .ne v39 c0_i32_25
  v40

def k4_off13 (i : grid4.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c480_i32 : BitVec 32 := 480#32
  let v41 : BitVec 32 := Scalar.addi v1 c480_i32
  let c3200_i32_26 : BitVec 32 := 3200#32
  let v42 : BitVec 32 := Scalar.muli v41 c3200_i32_26
  ![v42.toNat]
abbrev grid5 : Pipeline.Grid := ⟨2, ![2, 16], ![false, false]⟩

def k5_off1 (i : grid5.Coords) (c0_i32_6 : BitVec 32) : Fin 2 → Nat :=
  let c5_i32 : BitVec 32 := 5#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v22 : BitVec 32 := Scalar.addi v1 c0_i32_6
  let c3200_i32 : BitVec 32 := 3200#32
  let v23 : BitVec 32 := Scalar.muli v22 c3200_i32
  ![5, v23.toNat]
@[reducible] def k5_t1_loop : Scf.Loop 32 :=
  let c0_i32_21 : BitVec 32 := 0#32
  let c8_i32 : BitVec 32 := 8#32
  let v34 : BitVec 32 := Scalar.addi c0_i32_21 c8_i32
  let c1_i32_22 : BitVec 32 := 1#32
  ⟨c0_i32_21, v34, c1_i32_22⟩
def k5_cond1 (k5_t1 : Fin k5_t1_loop.trips) : BitVec 1 :=
  let c0_i32_21 : BitVec 32 := 0#32
  let c1_i32_22 : BitVec 32 := 1#32
  let arg12 : BitVec 32 := Scf.iv c0_i32_21 c1_i32_22 k5_t1
  let c2_i32_26 : BitVec 32 := 2#32
  let v41 : BitVec 32 := Scalar.muli arg12 c2_i32_26
  let c2_i32_27 : BitVec 32 := 2#32
  let v42 : BitVec 1 := Scalar.cmpi .sge v41 c2_i32_27
  let v43 : BitVec 32 := Scalar.extui v42
  let c0_i32_28 : BitVec 32 := 0#32
  let v44 : BitVec 1 := Scalar.cmpi .ne v43 c0_i32_28
  v44

def k5_off2 (i : grid5.Coords) (k5_t1 : Fin k5_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_21 : BitVec 32 := 0#32
  let c1_i32_22 : BitVec 32 := 1#32
  let arg12 : BitVec 32 := Scf.iv c0_i32_21 c1_i32_22 k5_t1
  let c2_i32_26 : BitVec 32 := 2#32
  let v41 : BitVec 32 := Scalar.muli arg12 c2_i32_26
  let c2_i32_39 : BitVec 32 := 2#32
  let v64 : BitVec 32 := Scalar.subi v41 c2_i32_39
  let c32_i32_40 : BitVec 32 := 32#32
  let v65 : BitVec 32 := Scalar.muli v64 c32_i32_40
  let v66 : BitVec 32 := Scalar.addi v1 v65
  let c3200_i32_41 : BitVec 32 := 3200#32
  let v67 : BitVec 32 := Scalar.muli v66 c3200_i32_41
  ![v67.toNat]
def k5_cond2 (i : grid5.Coords) (k5_t1 : Fin k5_t1_loop.trips) : BitVec 1 :=
  let c0_i32_21 : BitVec 32 := 0#32
  let c1_i32_22 : BitVec 32 := 1#32
  let arg12 : BitVec 32 := Scf.iv c0_i32_21 c1_i32_22 k5_t1
  let c2_i32_26 : BitVec 32 := 2#32
  let v41 : BitVec 32 := Scalar.muli arg12 c2_i32_26
  let c500_i32 : BitVec 32 := 500#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v2 : BitVec 32 := Scalar.subi c500_i32 v1
  let c32_i32 : BitVec 32 := 32#32
  let v3 : BitVec 32 := Scalar.addi v2 c32_i32
  let c1_i32 : BitVec 32 := 1#32
  let v4 : BitVec 32 := Scalar.subi v3 c1_i32
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c32_i32_0 : BitVec 32 := 32#32
  let c0_i32_2 : BitVec 32 := 0#32
  let v11 : BitVec 1 := Scalar.cmpi .sgt c32_i32_0 c0_i32_2
  let v12 : BitVec 32 := Scalar.extui v11
  let c0_i32_3 : BitVec 32 := 0#32
  let v13 : BitVec 1 := Scalar.cmpi .slt c32_i32_0 c0_i32_3
  let v14 : BitVec 32 := Scalar.extui v13
  let v15 : BitVec 32 := Scalar.subi v12 v14
  let v16 : BitVec 1 := Scalar.cmpi .ne v10 v15
  let v17 : BitVec 32 := Scalar.remsi v4 c32_i32_0
  let c0_i32_4 : BitVec 32 := 0#32
  let v18 : BitVec 1 := Scalar.cmpi .ne v17 c0_i32_4
  let v19 : BitVec 1 := Scalar.andi v16 v18
  let v5 : BitVec 32 := Scalar.divsi v4 c32_i32_0
  let c1_i32_5 : BitVec 32 := 1#32
  let v20 : BitVec 32 := Scalar.subi v5 c1_i32_5
  let v21 : BitVec 32 := Scalar.select v19 v20 v5
  let v45 : BitVec 1 := Scalar.cmpi .slt v41 v21
  let v46 : BitVec 32 := Scalar.extui v45
  let c0_i32_29 : BitVec 32 := 0#32
  let v47 : BitVec 1 := Scalar.cmpi .ne v46 c0_i32_29
  v47

@[reducible] def k5_t2_loop : Scf.Loop 32 :=
  let c0_i32_48 : BitVec 32 := 0#32
  let c200_i32 : BitVec 32 := 200#32
  let v68 : BitVec 32 := Scalar.addi c0_i32_48 c200_i32
  let c1_i32_49 : BitVec 32 := 1#32
  ⟨c0_i32_48, v68, c1_i32_49⟩
def k5_off3 (k5_t2 : Fin k5_t2_loop.trips) : Fin 2 → Nat :=
  let c0_i32_55 : BitVec 32 := 0#32
  let v77 : Index := Scalar.indexCast c0_i32_55
  let c0_i32_48 : BitVec 32 := 0#32
  let c1_i32_49 : BitVec 32 := 1#32
  let arg13 : BitVec 32 := Scf.iv c0_i32_48 c1_i32_49 k5_t2
  let c16_i32 : BitVec 32 := 16#32
  let v76 : BitVec 32 := Scalar.muli arg13 c16_i32
  let v78 : Index := Scalar.indexCast v76
  ![0, v78.toNat]
def k5_off4 (k5_t2 : Fin k5_t2_loop.trips) : Fin 1 → Nat :=
  let c0_i32_57 : BitVec 32 := 0#32
  let c0_i32_48 : BitVec 32 := 0#32
  let c1_i32_49 : BitVec 32 := 1#32
  let arg13 : BitVec 32 := Scf.iv c0_i32_48 c1_i32_49 k5_t2
  let c16_i32_56 : BitVec 32 := 16#32
  let v80 : BitVec 32 := Scalar.muli arg13 c16_i32_56
  let v81 : BitVec 32 := Scalar.addi c0_i32_57 v80
  let v82 : Index := Scalar.indexCast v81
  ![v82.toNat]
def k5_off5 (i : grid5.Coords) (k5_t1 : Fin k5_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_21 : BitVec 32 := 0#32
  let c1_i32_22 : BitVec 32 := 1#32
  let arg12 : BitVec 32 := Scf.iv c0_i32_21 c1_i32_22 k5_t1
  let c2_i32_26 : BitVec 32 := 2#32
  let v41 : BitVec 32 := Scalar.muli arg12 c2_i32_26
  let c32_i32_51 : BitVec 32 := 32#32
  let v69 : BitVec 32 := Scalar.muli v41 c32_i32_51
  let v70 : BitVec 32 := Scalar.addi v1 v69
  let c3200_i32_52 : BitVec 32 := 3200#32
  let v71 : BitVec 32 := Scalar.muli v70 c3200_i32_52
  ![v71.toNat]
def k5_cond3 (i : grid5.Coords) (k5_t1 : Fin k5_t1_loop.trips) : BitVec 1 :=
  let c0_i32_21 : BitVec 32 := 0#32
  let c1_i32_22 : BitVec 32 := 1#32
  let arg12 : BitVec 32 := Scf.iv c0_i32_21 c1_i32_22 k5_t1
  let c2_i32_26 : BitVec 32 := 2#32
  let v41 : BitVec 32 := Scalar.muli arg12 c2_i32_26
  let c2_i32_30 : BitVec 32 := 2#32
  let v48 : BitVec 32 := Scalar.addi v41 c2_i32_30
  let c500_i32 : BitVec 32 := 500#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v2 : BitVec 32 := Scalar.subi c500_i32 v1
  let c32_i32 : BitVec 32 := 32#32
  let v3 : BitVec 32 := Scalar.addi v2 c32_i32
  let c1_i32 : BitVec 32 := 1#32
  let v4 : BitVec 32 := Scalar.subi v3 c1_i32
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c32_i32_0 : BitVec 32 := 32#32
  let c0_i32_2 : BitVec 32 := 0#32
  let v11 : BitVec 1 := Scalar.cmpi .sgt c32_i32_0 c0_i32_2
  let v12 : BitVec 32 := Scalar.extui v11
  let c0_i32_3 : BitVec 32 := 0#32
  let v13 : BitVec 1 := Scalar.cmpi .slt c32_i32_0 c0_i32_3
  let v14 : BitVec 32 := Scalar.extui v13
  let v15 : BitVec 32 := Scalar.subi v12 v14
  let v16 : BitVec 1 := Scalar.cmpi .ne v10 v15
  let v17 : BitVec 32 := Scalar.remsi v4 c32_i32_0
  let c0_i32_4 : BitVec 32 := 0#32
  let v18 : BitVec 1 := Scalar.cmpi .ne v17 c0_i32_4
  let v19 : BitVec 1 := Scalar.andi v16 v18
  let v5 : BitVec 32 := Scalar.divsi v4 c32_i32_0
  let c1_i32_5 : BitVec 32 := 1#32
  let v20 : BitVec 32 := Scalar.subi v5 c1_i32_5
  let v21 : BitVec 32 := Scalar.select v19 v20 v5
  let v49 : BitVec 1 := Scalar.cmpi .slt v48 v21
  let v50 : BitVec 32 := Scalar.extui v49
  let c0_i32_31 : BitVec 32 := 0#32
  let v51 : BitVec 1 := Scalar.cmpi .ne v50 c0_i32_31
  v51

def k5_off6 (i : grid5.Coords) (k5_t1 : Fin k5_t1_loop.trips) : Fin 2 → Nat :=
  let c5_i32_44 : BitVec 32 := 5#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_21 : BitVec 32 := 0#32
  let c1_i32_22 : BitVec 32 := 1#32
  let arg12 : BitVec 32 := Scf.iv c0_i32_21 c1_i32_22 k5_t1
  let c2_i32_26 : BitVec 32 := 2#32
  let v41 : BitVec 32 := Scalar.muli arg12 c2_i32_26
  let c2_i32_39 : BitVec 32 := 2#32
  let v64 : BitVec 32 := Scalar.addi v41 c2_i32_39
  let c32_i32_40 : BitVec 32 := 32#32
  let v65 : BitVec 32 := Scalar.muli v64 c32_i32_40
  let v66 : BitVec 32 := Scalar.addi v1 v65
  let c3200_i32_41 : BitVec 32 := 3200#32
  let v67 : BitVec 32 := Scalar.muli v66 c3200_i32_41
  ![5, v67.toNat]
def k5_cond4 (k5_t1 : Fin k5_t1_loop.trips) : BitVec 1 :=
  let c0_i32_21 : BitVec 32 := 0#32
  let c1_i32_22 : BitVec 32 := 1#32
  let arg12 : BitVec 32 := Scf.iv c0_i32_21 c1_i32_22 k5_t1
  let c2_i32_32 : BitVec 32 := 2#32
  let v52 : BitVec 32 := Scalar.muli arg12 c2_i32_32
  let c1_i32_33 : BitVec 32 := 1#32
  let v53 : BitVec 32 := Scalar.addi v52 c1_i32_33
  let c2_i32_34 : BitVec 32 := 2#32
  let v54 : BitVec 1 := Scalar.cmpi .sge v53 c2_i32_34
  let v55 : BitVec 32 := Scalar.extui v54
  let c0_i32_35 : BitVec 32 := 0#32
  let v56 : BitVec 1 := Scalar.cmpi .ne v55 c0_i32_35
  v56

def k5_off7 (i : grid5.Coords) (k5_t1 : Fin k5_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_21 : BitVec 32 := 0#32
  let c1_i32_22 : BitVec 32 := 1#32
  let arg12 : BitVec 32 := Scf.iv c0_i32_21 c1_i32_22 k5_t1
  let c2_i32_32 : BitVec 32 := 2#32
  let v52 : BitVec 32 := Scalar.muli arg12 c2_i32_32
  let c1_i32_33 : BitVec 32 := 1#32
  let v53 : BitVec 32 := Scalar.addi v52 c1_i32_33
  let c2_i32_39 : BitVec 32 := 2#32
  let v64 : BitVec 32 := Scalar.subi v53 c2_i32_39
  let c32_i32_40 : BitVec 32 := 32#32
  let v65 : BitVec 32 := Scalar.muli v64 c32_i32_40
  let v66 : BitVec 32 := Scalar.addi v1 v65
  let c3200_i32_41 : BitVec 32 := 3200#32
  let v67 : BitVec 32 := Scalar.muli v66 c3200_i32_41
  ![v67.toNat]
def k5_cond5 (i : grid5.Coords) (k5_t1 : Fin k5_t1_loop.trips) : BitVec 1 :=
  let c0_i32_21 : BitVec 32 := 0#32
  let c1_i32_22 : BitVec 32 := 1#32
  let arg12 : BitVec 32 := Scf.iv c0_i32_21 c1_i32_22 k5_t1
  let c2_i32_32 : BitVec 32 := 2#32
  let v52 : BitVec 32 := Scalar.muli arg12 c2_i32_32
  let c1_i32_33 : BitVec 32 := 1#32
  let v53 : BitVec 32 := Scalar.addi v52 c1_i32_33
  let c500_i32 : BitVec 32 := 500#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v2 : BitVec 32 := Scalar.subi c500_i32 v1
  let c32_i32 : BitVec 32 := 32#32
  let v3 : BitVec 32 := Scalar.addi v2 c32_i32
  let c1_i32 : BitVec 32 := 1#32
  let v4 : BitVec 32 := Scalar.subi v3 c1_i32
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c32_i32_0 : BitVec 32 := 32#32
  let c0_i32_2 : BitVec 32 := 0#32
  let v11 : BitVec 1 := Scalar.cmpi .sgt c32_i32_0 c0_i32_2
  let v12 : BitVec 32 := Scalar.extui v11
  let c0_i32_3 : BitVec 32 := 0#32
  let v13 : BitVec 1 := Scalar.cmpi .slt c32_i32_0 c0_i32_3
  let v14 : BitVec 32 := Scalar.extui v13
  let v15 : BitVec 32 := Scalar.subi v12 v14
  let v16 : BitVec 1 := Scalar.cmpi .ne v10 v15
  let v17 : BitVec 32 := Scalar.remsi v4 c32_i32_0
  let c0_i32_4 : BitVec 32 := 0#32
  let v18 : BitVec 1 := Scalar.cmpi .ne v17 c0_i32_4
  let v19 : BitVec 1 := Scalar.andi v16 v18
  let v5 : BitVec 32 := Scalar.divsi v4 c32_i32_0
  let c1_i32_5 : BitVec 32 := 1#32
  let v20 : BitVec 32 := Scalar.subi v5 c1_i32_5
  let v21 : BitVec 32 := Scalar.select v19 v20 v5
  let v57 : BitVec 1 := Scalar.cmpi .slt v53 v21
  let v58 : BitVec 32 := Scalar.extui v57
  let c0_i32_36 : BitVec 32 := 0#32
  let v59 : BitVec 1 := Scalar.cmpi .ne v58 c0_i32_36
  v59

@[reducible] def k5_t3_loop : Scf.Loop 32 :=
  let c0_i32_48 : BitVec 32 := 0#32
  let c200_i32 : BitVec 32 := 200#32
  let v68 : BitVec 32 := Scalar.addi c0_i32_48 c200_i32
  let c1_i32_49 : BitVec 32 := 1#32
  ⟨c0_i32_48, v68, c1_i32_49⟩
def k5_off8 (k5_t3 : Fin k5_t3_loop.trips) : Fin 2 → Nat :=
  let c0_i32_55 : BitVec 32 := 0#32
  let v77 : Index := Scalar.indexCast c0_i32_55
  let c0_i32_48 : BitVec 32 := 0#32
  let c1_i32_49 : BitVec 32 := 1#32
  let arg13 : BitVec 32 := Scf.iv c0_i32_48 c1_i32_49 k5_t3
  let c16_i32 : BitVec 32 := 16#32
  let v76 : BitVec 32 := Scalar.muli arg13 c16_i32
  let v78 : Index := Scalar.indexCast v76
  ![0, v78.toNat]
def k5_off9 (k5_t3 : Fin k5_t3_loop.trips) : Fin 1 → Nat :=
  let c0_i32_57 : BitVec 32 := 0#32
  let c0_i32_48 : BitVec 32 := 0#32
  let c1_i32_49 : BitVec 32 := 1#32
  let arg13 : BitVec 32 := Scf.iv c0_i32_48 c1_i32_49 k5_t3
  let c16_i32_56 : BitVec 32 := 16#32
  let v80 : BitVec 32 := Scalar.muli arg13 c16_i32_56
  let v81 : BitVec 32 := Scalar.addi c0_i32_57 v80
  let v82 : Index := Scalar.indexCast v81
  ![v82.toNat]
def k5_off10 (i : grid5.Coords) (k5_t1 : Fin k5_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_21 : BitVec 32 := 0#32
  let c1_i32_22 : BitVec 32 := 1#32
  let arg12 : BitVec 32 := Scf.iv c0_i32_21 c1_i32_22 k5_t1
  let c2_i32_32 : BitVec 32 := 2#32
  let v52 : BitVec 32 := Scalar.muli arg12 c2_i32_32
  let c1_i32_33 : BitVec 32 := 1#32
  let v53 : BitVec 32 := Scalar.addi v52 c1_i32_33
  let c32_i32_51 : BitVec 32 := 32#32
  let v69 : BitVec 32 := Scalar.muli v53 c32_i32_51
  let v70 : BitVec 32 := Scalar.addi v1 v69
  let c3200_i32_52 : BitVec 32 := 3200#32
  let v71 : BitVec 32 := Scalar.muli v70 c3200_i32_52
  ![v71.toNat]
def k5_cond6 (i : grid5.Coords) (k5_t1 : Fin k5_t1_loop.trips) : BitVec 1 :=
  let c0_i32_21 : BitVec 32 := 0#32
  let c1_i32_22 : BitVec 32 := 1#32
  let arg12 : BitVec 32 := Scf.iv c0_i32_21 c1_i32_22 k5_t1
  let c2_i32_32 : BitVec 32 := 2#32
  let v52 : BitVec 32 := Scalar.muli arg12 c2_i32_32
  let c1_i32_33 : BitVec 32 := 1#32
  let v53 : BitVec 32 := Scalar.addi v52 c1_i32_33
  let c2_i32_37 : BitVec 32 := 2#32
  let v60 : BitVec 32 := Scalar.addi v53 c2_i32_37
  let c500_i32 : BitVec 32 := 500#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v2 : BitVec 32 := Scalar.subi c500_i32 v1
  let c32_i32 : BitVec 32 := 32#32
  let v3 : BitVec 32 := Scalar.addi v2 c32_i32
  let c1_i32 : BitVec 32 := 1#32
  let v4 : BitVec 32 := Scalar.subi v3 c1_i32
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c32_i32_0 : BitVec 32 := 32#32
  let c0_i32_2 : BitVec 32 := 0#32
  let v11 : BitVec 1 := Scalar.cmpi .sgt c32_i32_0 c0_i32_2
  let v12 : BitVec 32 := Scalar.extui v11
  let c0_i32_3 : BitVec 32 := 0#32
  let v13 : BitVec 1 := Scalar.cmpi .slt c32_i32_0 c0_i32_3
  let v14 : BitVec 32 := Scalar.extui v13
  let v15 : BitVec 32 := Scalar.subi v12 v14
  let v16 : BitVec 1 := Scalar.cmpi .ne v10 v15
  let v17 : BitVec 32 := Scalar.remsi v4 c32_i32_0
  let c0_i32_4 : BitVec 32 := 0#32
  let v18 : BitVec 1 := Scalar.cmpi .ne v17 c0_i32_4
  let v19 : BitVec 1 := Scalar.andi v16 v18
  let v5 : BitVec 32 := Scalar.divsi v4 c32_i32_0
  let c1_i32_5 : BitVec 32 := 1#32
  let v20 : BitVec 32 := Scalar.subi v5 c1_i32_5
  let v21 : BitVec 32 := Scalar.select v19 v20 v5
  let v61 : BitVec 1 := Scalar.cmpi .slt v60 v21
  let v62 : BitVec 32 := Scalar.extui v61
  let c0_i32_38 : BitVec 32 := 0#32
  let v63 : BitVec 1 := Scalar.cmpi .ne v62 c0_i32_38
  v63

def k5_off11 (i : grid5.Coords) (k5_t1 : Fin k5_t1_loop.trips) : Fin 2 → Nat :=
  let c5_i32_44 : BitVec 32 := 5#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_21 : BitVec 32 := 0#32
  let c1_i32_22 : BitVec 32 := 1#32
  let arg12 : BitVec 32 := Scf.iv c0_i32_21 c1_i32_22 k5_t1
  let c2_i32_32 : BitVec 32 := 2#32
  let v52 : BitVec 32 := Scalar.muli arg12 c2_i32_32
  let c1_i32_33 : BitVec 32 := 1#32
  let v53 : BitVec 32 := Scalar.addi v52 c1_i32_33
  let c2_i32_39 : BitVec 32 := 2#32
  let v64 : BitVec 32 := Scalar.addi v53 c2_i32_39
  let c32_i32_40 : BitVec 32 := 32#32
  let v65 : BitVec 32 := Scalar.muli v64 c32_i32_40
  let v66 : BitVec 32 := Scalar.addi v1 v65
  let c3200_i32_41 : BitVec 32 := 3200#32
  let v67 : BitVec 32 := Scalar.muli v66 c3200_i32_41
  ![5, v67.toNat]
def k5_cond7 (i : grid5.Coords) : BitVec 1 :=
  let c500_i32 : BitVec 32 := 500#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v2 : BitVec 32 := Scalar.subi c500_i32 v1
  let c32_i32 : BitVec 32 := 32#32
  let v3 : BitVec 32 := Scalar.addi v2 c32_i32
  let c1_i32 : BitVec 32 := 1#32
  let v4 : BitVec 32 := Scalar.subi v3 c1_i32
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c32_i32_0 : BitVec 32 := 32#32
  let c0_i32_2 : BitVec 32 := 0#32
  let v11 : BitVec 1 := Scalar.cmpi .sgt c32_i32_0 c0_i32_2
  let v12 : BitVec 32 := Scalar.extui v11
  let c0_i32_3 : BitVec 32 := 0#32
  let v13 : BitVec 1 := Scalar.cmpi .slt c32_i32_0 c0_i32_3
  let v14 : BitVec 32 := Scalar.extui v13
  let v15 : BitVec 32 := Scalar.subi v12 v14
  let v16 : BitVec 1 := Scalar.cmpi .ne v10 v15
  let v17 : BitVec 32 := Scalar.remsi v4 c32_i32_0
  let c0_i32_4 : BitVec 32 := 0#32
  let v18 : BitVec 1 := Scalar.cmpi .ne v17 c0_i32_4
  let v19 : BitVec 1 := Scalar.andi v16 v18
  let v5 : BitVec 32 := Scalar.divsi v4 c32_i32_0
  let c1_i32_5 : BitVec 32 := 1#32
  let v20 : BitVec 32 := Scalar.subi v5 c1_i32_5
  let v21 : BitVec 32 := Scalar.select v19 v20 v5
  let c14_i32 : BitVec 32 := 14#32
  let v35 : BitVec 1 := Scalar.cmpi .sgt v21 c14_i32
  let v36 : BitVec 32 := Scalar.extui v35
  let c0_i32_24 : BitVec 32 := 0#32
  let v37 : BitVec 1 := Scalar.cmpi .ne v36 c0_i32_24
  v37

def k5_off12 (i : grid5.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c448_i32 : BitVec 32 := 448#32
  let v41 : BitVec 32 := Scalar.addi v1 c448_i32
  let c3200_i32_26 : BitVec 32 := 3200#32
  let v42 : BitVec 32 := Scalar.muli v41 c3200_i32_26
  ![v42.toNat]
def k5_cond8 (i : grid5.Coords) : BitVec 1 :=
  let c500_i32 : BitVec 32 := 500#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v2 : BitVec 32 := Scalar.subi c500_i32 v1
  let c32_i32 : BitVec 32 := 32#32
  let v3 : BitVec 32 := Scalar.addi v2 c32_i32
  let c1_i32 : BitVec 32 := 1#32
  let v4 : BitVec 32 := Scalar.subi v3 c1_i32
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c32_i32_0 : BitVec 32 := 32#32
  let c0_i32_2 : BitVec 32 := 0#32
  let v11 : BitVec 1 := Scalar.cmpi .sgt c32_i32_0 c0_i32_2
  let v12 : BitVec 32 := Scalar.extui v11
  let c0_i32_3 : BitVec 32 := 0#32
  let v13 : BitVec 1 := Scalar.cmpi .slt c32_i32_0 c0_i32_3
  let v14 : BitVec 32 := Scalar.extui v13
  let v15 : BitVec 32 := Scalar.subi v12 v14
  let v16 : BitVec 1 := Scalar.cmpi .ne v10 v15
  let v17 : BitVec 32 := Scalar.remsi v4 c32_i32_0
  let c0_i32_4 : BitVec 32 := 0#32
  let v18 : BitVec 1 := Scalar.cmpi .ne v17 c0_i32_4
  let v19 : BitVec 1 := Scalar.andi v16 v18
  let v5 : BitVec 32 := Scalar.divsi v4 c32_i32_0
  let c1_i32_5 : BitVec 32 := 1#32
  let v20 : BitVec 32 := Scalar.subi v5 c1_i32_5
  let v21 : BitVec 32 := Scalar.select v19 v20 v5
  let c15_i32 : BitVec 32 := 15#32
  let v38 : BitVec 1 := Scalar.cmpi .sgt v21 c15_i32
  let v39 : BitVec 32 := Scalar.extui v38
  let c0_i32_25 : BitVec 32 := 0#32
  let v40 : BitVec 1 := Scalar.cmpi .ne v39 c0_i32_25
  v40

def k5_off13 (i : grid5.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c480_i32 : BitVec 32 := 480#32
  let v41 : BitVec 32 := Scalar.addi v1 c480_i32
  let c3200_i32_26 : BitVec 32 := 3200#32
  let v42 : BitVec 32 := Scalar.muli v41 c3200_i32_26
  ![v42.toNat]
abbrev grid6 : Pipeline.Grid := ⟨2, ![2, 16], ![false, false]⟩

def k6_off1 (i : grid6.Coords) (c0_i32_6 : BitVec 32) : Fin 2 → Nat :=
  let c6_i32 : BitVec 32 := 6#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v22 : BitVec 32 := Scalar.addi v1 c0_i32_6
  let c3200_i32 : BitVec 32 := 3200#32
  let v23 : BitVec 32 := Scalar.muli v22 c3200_i32
  ![6, v23.toNat]
@[reducible] def k6_t1_loop : Scf.Loop 32 :=
  let c0_i32_21 : BitVec 32 := 0#32
  let c8_i32 : BitVec 32 := 8#32
  let v34 : BitVec 32 := Scalar.addi c0_i32_21 c8_i32
  let c1_i32_22 : BitVec 32 := 1#32
  ⟨c0_i32_21, v34, c1_i32_22⟩
def k6_cond1 (k6_t1 : Fin k6_t1_loop.trips) : BitVec 1 :=
  let c0_i32_21 : BitVec 32 := 0#32
  let c1_i32_22 : BitVec 32 := 1#32
  let arg12 : BitVec 32 := Scf.iv c0_i32_21 c1_i32_22 k6_t1
  let c2_i32_26 : BitVec 32 := 2#32
  let v41 : BitVec 32 := Scalar.muli arg12 c2_i32_26
  let c2_i32_27 : BitVec 32 := 2#32
  let v42 : BitVec 1 := Scalar.cmpi .sge v41 c2_i32_27
  let v43 : BitVec 32 := Scalar.extui v42
  let c0_i32_28 : BitVec 32 := 0#32
  let v44 : BitVec 1 := Scalar.cmpi .ne v43 c0_i32_28
  v44

def k6_off2 (i : grid6.Coords) (k6_t1 : Fin k6_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_21 : BitVec 32 := 0#32
  let c1_i32_22 : BitVec 32 := 1#32
  let arg12 : BitVec 32 := Scf.iv c0_i32_21 c1_i32_22 k6_t1
  let c2_i32_26 : BitVec 32 := 2#32
  let v41 : BitVec 32 := Scalar.muli arg12 c2_i32_26
  let c2_i32_39 : BitVec 32 := 2#32
  let v64 : BitVec 32 := Scalar.subi v41 c2_i32_39
  let c32_i32_40 : BitVec 32 := 32#32
  let v65 : BitVec 32 := Scalar.muli v64 c32_i32_40
  let v66 : BitVec 32 := Scalar.addi v1 v65
  let c3200_i32_41 : BitVec 32 := 3200#32
  let v67 : BitVec 32 := Scalar.muli v66 c3200_i32_41
  ![v67.toNat]
def k6_cond2 (i : grid6.Coords) (k6_t1 : Fin k6_t1_loop.trips) : BitVec 1 :=
  let c0_i32_21 : BitVec 32 := 0#32
  let c1_i32_22 : BitVec 32 := 1#32
  let arg12 : BitVec 32 := Scf.iv c0_i32_21 c1_i32_22 k6_t1
  let c2_i32_26 : BitVec 32 := 2#32
  let v41 : BitVec 32 := Scalar.muli arg12 c2_i32_26
  let c500_i32 : BitVec 32 := 500#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v2 : BitVec 32 := Scalar.subi c500_i32 v1
  let c32_i32 : BitVec 32 := 32#32
  let v3 : BitVec 32 := Scalar.addi v2 c32_i32
  let c1_i32 : BitVec 32 := 1#32
  let v4 : BitVec 32 := Scalar.subi v3 c1_i32
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c32_i32_0 : BitVec 32 := 32#32
  let c0_i32_2 : BitVec 32 := 0#32
  let v11 : BitVec 1 := Scalar.cmpi .sgt c32_i32_0 c0_i32_2
  let v12 : BitVec 32 := Scalar.extui v11
  let c0_i32_3 : BitVec 32 := 0#32
  let v13 : BitVec 1 := Scalar.cmpi .slt c32_i32_0 c0_i32_3
  let v14 : BitVec 32 := Scalar.extui v13
  let v15 : BitVec 32 := Scalar.subi v12 v14
  let v16 : BitVec 1 := Scalar.cmpi .ne v10 v15
  let v17 : BitVec 32 := Scalar.remsi v4 c32_i32_0
  let c0_i32_4 : BitVec 32 := 0#32
  let v18 : BitVec 1 := Scalar.cmpi .ne v17 c0_i32_4
  let v19 : BitVec 1 := Scalar.andi v16 v18
  let v5 : BitVec 32 := Scalar.divsi v4 c32_i32_0
  let c1_i32_5 : BitVec 32 := 1#32
  let v20 : BitVec 32 := Scalar.subi v5 c1_i32_5
  let v21 : BitVec 32 := Scalar.select v19 v20 v5
  let v45 : BitVec 1 := Scalar.cmpi .slt v41 v21
  let v46 : BitVec 32 := Scalar.extui v45
  let c0_i32_29 : BitVec 32 := 0#32
  let v47 : BitVec 1 := Scalar.cmpi .ne v46 c0_i32_29
  v47

@[reducible] def k6_t2_loop : Scf.Loop 32 :=
  let c0_i32_48 : BitVec 32 := 0#32
  let c200_i32 : BitVec 32 := 200#32
  let v68 : BitVec 32 := Scalar.addi c0_i32_48 c200_i32
  let c1_i32_49 : BitVec 32 := 1#32
  ⟨c0_i32_48, v68, c1_i32_49⟩
def k6_off3 (k6_t2 : Fin k6_t2_loop.trips) : Fin 2 → Nat :=
  let c0_i32_55 : BitVec 32 := 0#32
  let v77 : Index := Scalar.indexCast c0_i32_55
  let c0_i32_48 : BitVec 32 := 0#32
  let c1_i32_49 : BitVec 32 := 1#32
  let arg13 : BitVec 32 := Scf.iv c0_i32_48 c1_i32_49 k6_t2
  let c16_i32 : BitVec 32 := 16#32
  let v76 : BitVec 32 := Scalar.muli arg13 c16_i32
  let v78 : Index := Scalar.indexCast v76
  ![0, v78.toNat]
def k6_off4 (k6_t2 : Fin k6_t2_loop.trips) : Fin 1 → Nat :=
  let c0_i32_57 : BitVec 32 := 0#32
  let c0_i32_48 : BitVec 32 := 0#32
  let c1_i32_49 : BitVec 32 := 1#32
  let arg13 : BitVec 32 := Scf.iv c0_i32_48 c1_i32_49 k6_t2
  let c16_i32_56 : BitVec 32 := 16#32
  let v80 : BitVec 32 := Scalar.muli arg13 c16_i32_56
  let v81 : BitVec 32 := Scalar.addi c0_i32_57 v80
  let v82 : Index := Scalar.indexCast v81
  ![v82.toNat]
def k6_off5 (i : grid6.Coords) (k6_t1 : Fin k6_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_21 : BitVec 32 := 0#32
  let c1_i32_22 : BitVec 32 := 1#32
  let arg12 : BitVec 32 := Scf.iv c0_i32_21 c1_i32_22 k6_t1
  let c2_i32_26 : BitVec 32 := 2#32
  let v41 : BitVec 32 := Scalar.muli arg12 c2_i32_26
  let c32_i32_51 : BitVec 32 := 32#32
  let v69 : BitVec 32 := Scalar.muli v41 c32_i32_51
  let v70 : BitVec 32 := Scalar.addi v1 v69
  let c3200_i32_52 : BitVec 32 := 3200#32
  let v71 : BitVec 32 := Scalar.muli v70 c3200_i32_52
  ![v71.toNat]
def k6_cond3 (i : grid6.Coords) (k6_t1 : Fin k6_t1_loop.trips) : BitVec 1 :=
  let c0_i32_21 : BitVec 32 := 0#32
  let c1_i32_22 : BitVec 32 := 1#32
  let arg12 : BitVec 32 := Scf.iv c0_i32_21 c1_i32_22 k6_t1
  let c2_i32_26 : BitVec 32 := 2#32
  let v41 : BitVec 32 := Scalar.muli arg12 c2_i32_26
  let c2_i32_30 : BitVec 32 := 2#32
  let v48 : BitVec 32 := Scalar.addi v41 c2_i32_30
  let c500_i32 : BitVec 32 := 500#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v2 : BitVec 32 := Scalar.subi c500_i32 v1
  let c32_i32 : BitVec 32 := 32#32
  let v3 : BitVec 32 := Scalar.addi v2 c32_i32
  let c1_i32 : BitVec 32 := 1#32
  let v4 : BitVec 32 := Scalar.subi v3 c1_i32
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c32_i32_0 : BitVec 32 := 32#32
  let c0_i32_2 : BitVec 32 := 0#32
  let v11 : BitVec 1 := Scalar.cmpi .sgt c32_i32_0 c0_i32_2
  let v12 : BitVec 32 := Scalar.extui v11
  let c0_i32_3 : BitVec 32 := 0#32
  let v13 : BitVec 1 := Scalar.cmpi .slt c32_i32_0 c0_i32_3
  let v14 : BitVec 32 := Scalar.extui v13
  let v15 : BitVec 32 := Scalar.subi v12 v14
  let v16 : BitVec 1 := Scalar.cmpi .ne v10 v15
  let v17 : BitVec 32 := Scalar.remsi v4 c32_i32_0
  let c0_i32_4 : BitVec 32 := 0#32
  let v18 : BitVec 1 := Scalar.cmpi .ne v17 c0_i32_4
  let v19 : BitVec 1 := Scalar.andi v16 v18
  let v5 : BitVec 32 := Scalar.divsi v4 c32_i32_0
  let c1_i32_5 : BitVec 32 := 1#32
  let v20 : BitVec 32 := Scalar.subi v5 c1_i32_5
  let v21 : BitVec 32 := Scalar.select v19 v20 v5
  let v49 : BitVec 1 := Scalar.cmpi .slt v48 v21
  let v50 : BitVec 32 := Scalar.extui v49
  let c0_i32_31 : BitVec 32 := 0#32
  let v51 : BitVec 1 := Scalar.cmpi .ne v50 c0_i32_31
  v51

def k6_off6 (i : grid6.Coords) (k6_t1 : Fin k6_t1_loop.trips) : Fin 2 → Nat :=
  let c6_i32_44 : BitVec 32 := 6#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_21 : BitVec 32 := 0#32
  let c1_i32_22 : BitVec 32 := 1#32
  let arg12 : BitVec 32 := Scf.iv c0_i32_21 c1_i32_22 k6_t1
  let c2_i32_26 : BitVec 32 := 2#32
  let v41 : BitVec 32 := Scalar.muli arg12 c2_i32_26
  let c2_i32_39 : BitVec 32 := 2#32
  let v64 : BitVec 32 := Scalar.addi v41 c2_i32_39
  let c32_i32_40 : BitVec 32 := 32#32
  let v65 : BitVec 32 := Scalar.muli v64 c32_i32_40
  let v66 : BitVec 32 := Scalar.addi v1 v65
  let c3200_i32_41 : BitVec 32 := 3200#32
  let v67 : BitVec 32 := Scalar.muli v66 c3200_i32_41
  ![6, v67.toNat]
def k6_cond4 (k6_t1 : Fin k6_t1_loop.trips) : BitVec 1 :=
  let c0_i32_21 : BitVec 32 := 0#32
  let c1_i32_22 : BitVec 32 := 1#32
  let arg12 : BitVec 32 := Scf.iv c0_i32_21 c1_i32_22 k6_t1
  let c2_i32_32 : BitVec 32 := 2#32
  let v52 : BitVec 32 := Scalar.muli arg12 c2_i32_32
  let c1_i32_33 : BitVec 32 := 1#32
  let v53 : BitVec 32 := Scalar.addi v52 c1_i32_33
  let c2_i32_34 : BitVec 32 := 2#32
  let v54 : BitVec 1 := Scalar.cmpi .sge v53 c2_i32_34
  let v55 : BitVec 32 := Scalar.extui v54
  let c0_i32_35 : BitVec 32 := 0#32
  let v56 : BitVec 1 := Scalar.cmpi .ne v55 c0_i32_35
  v56

def k6_off7 (i : grid6.Coords) (k6_t1 : Fin k6_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_21 : BitVec 32 := 0#32
  let c1_i32_22 : BitVec 32 := 1#32
  let arg12 : BitVec 32 := Scf.iv c0_i32_21 c1_i32_22 k6_t1
  let c2_i32_32 : BitVec 32 := 2#32
  let v52 : BitVec 32 := Scalar.muli arg12 c2_i32_32
  let c1_i32_33 : BitVec 32 := 1#32
  let v53 : BitVec 32 := Scalar.addi v52 c1_i32_33
  let c2_i32_39 : BitVec 32 := 2#32
  let v64 : BitVec 32 := Scalar.subi v53 c2_i32_39
  let c32_i32_40 : BitVec 32 := 32#32
  let v65 : BitVec 32 := Scalar.muli v64 c32_i32_40
  let v66 : BitVec 32 := Scalar.addi v1 v65
  let c3200_i32_41 : BitVec 32 := 3200#32
  let v67 : BitVec 32 := Scalar.muli v66 c3200_i32_41
  ![v67.toNat]
def k6_cond5 (i : grid6.Coords) (k6_t1 : Fin k6_t1_loop.trips) : BitVec 1 :=
  let c0_i32_21 : BitVec 32 := 0#32
  let c1_i32_22 : BitVec 32 := 1#32
  let arg12 : BitVec 32 := Scf.iv c0_i32_21 c1_i32_22 k6_t1
  let c2_i32_32 : BitVec 32 := 2#32
  let v52 : BitVec 32 := Scalar.muli arg12 c2_i32_32
  let c1_i32_33 : BitVec 32 := 1#32
  let v53 : BitVec 32 := Scalar.addi v52 c1_i32_33
  let c500_i32 : BitVec 32 := 500#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v2 : BitVec 32 := Scalar.subi c500_i32 v1
  let c32_i32 : BitVec 32 := 32#32
  let v3 : BitVec 32 := Scalar.addi v2 c32_i32
  let c1_i32 : BitVec 32 := 1#32
  let v4 : BitVec 32 := Scalar.subi v3 c1_i32
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c32_i32_0 : BitVec 32 := 32#32
  let c0_i32_2 : BitVec 32 := 0#32
  let v11 : BitVec 1 := Scalar.cmpi .sgt c32_i32_0 c0_i32_2
  let v12 : BitVec 32 := Scalar.extui v11
  let c0_i32_3 : BitVec 32 := 0#32
  let v13 : BitVec 1 := Scalar.cmpi .slt c32_i32_0 c0_i32_3
  let v14 : BitVec 32 := Scalar.extui v13
  let v15 : BitVec 32 := Scalar.subi v12 v14
  let v16 : BitVec 1 := Scalar.cmpi .ne v10 v15
  let v17 : BitVec 32 := Scalar.remsi v4 c32_i32_0
  let c0_i32_4 : BitVec 32 := 0#32
  let v18 : BitVec 1 := Scalar.cmpi .ne v17 c0_i32_4
  let v19 : BitVec 1 := Scalar.andi v16 v18
  let v5 : BitVec 32 := Scalar.divsi v4 c32_i32_0
  let c1_i32_5 : BitVec 32 := 1#32
  let v20 : BitVec 32 := Scalar.subi v5 c1_i32_5
  let v21 : BitVec 32 := Scalar.select v19 v20 v5
  let v57 : BitVec 1 := Scalar.cmpi .slt v53 v21
  let v58 : BitVec 32 := Scalar.extui v57
  let c0_i32_36 : BitVec 32 := 0#32
  let v59 : BitVec 1 := Scalar.cmpi .ne v58 c0_i32_36
  v59

@[reducible] def k6_t3_loop : Scf.Loop 32 :=
  let c0_i32_48 : BitVec 32 := 0#32
  let c200_i32 : BitVec 32 := 200#32
  let v68 : BitVec 32 := Scalar.addi c0_i32_48 c200_i32
  let c1_i32_49 : BitVec 32 := 1#32
  ⟨c0_i32_48, v68, c1_i32_49⟩
def k6_off8 (k6_t3 : Fin k6_t3_loop.trips) : Fin 2 → Nat :=
  let c0_i32_55 : BitVec 32 := 0#32
  let v77 : Index := Scalar.indexCast c0_i32_55
  let c0_i32_48 : BitVec 32 := 0#32
  let c1_i32_49 : BitVec 32 := 1#32
  let arg13 : BitVec 32 := Scf.iv c0_i32_48 c1_i32_49 k6_t3
  let c16_i32 : BitVec 32 := 16#32
  let v76 : BitVec 32 := Scalar.muli arg13 c16_i32
  let v78 : Index := Scalar.indexCast v76
  ![0, v78.toNat]
def k6_off9 (k6_t3 : Fin k6_t3_loop.trips) : Fin 1 → Nat :=
  let c0_i32_57 : BitVec 32 := 0#32
  let c0_i32_48 : BitVec 32 := 0#32
  let c1_i32_49 : BitVec 32 := 1#32
  let arg13 : BitVec 32 := Scf.iv c0_i32_48 c1_i32_49 k6_t3
  let c16_i32_56 : BitVec 32 := 16#32
  let v80 : BitVec 32 := Scalar.muli arg13 c16_i32_56
  let v81 : BitVec 32 := Scalar.addi c0_i32_57 v80
  let v82 : Index := Scalar.indexCast v81
  ![v82.toNat]
def k6_off10 (i : grid6.Coords) (k6_t1 : Fin k6_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_21 : BitVec 32 := 0#32
  let c1_i32_22 : BitVec 32 := 1#32
  let arg12 : BitVec 32 := Scf.iv c0_i32_21 c1_i32_22 k6_t1
  let c2_i32_32 : BitVec 32 := 2#32
  let v52 : BitVec 32 := Scalar.muli arg12 c2_i32_32
  let c1_i32_33 : BitVec 32 := 1#32
  let v53 : BitVec 32 := Scalar.addi v52 c1_i32_33
  let c32_i32_51 : BitVec 32 := 32#32
  let v69 : BitVec 32 := Scalar.muli v53 c32_i32_51
  let v70 : BitVec 32 := Scalar.addi v1 v69
  let c3200_i32_52 : BitVec 32 := 3200#32
  let v71 : BitVec 32 := Scalar.muli v70 c3200_i32_52
  ![v71.toNat]
def k6_cond6 (i : grid6.Coords) (k6_t1 : Fin k6_t1_loop.trips) : BitVec 1 :=
  let c0_i32_21 : BitVec 32 := 0#32
  let c1_i32_22 : BitVec 32 := 1#32
  let arg12 : BitVec 32 := Scf.iv c0_i32_21 c1_i32_22 k6_t1
  let c2_i32_32 : BitVec 32 := 2#32
  let v52 : BitVec 32 := Scalar.muli arg12 c2_i32_32
  let c1_i32_33 : BitVec 32 := 1#32
  let v53 : BitVec 32 := Scalar.addi v52 c1_i32_33
  let c2_i32_37 : BitVec 32 := 2#32
  let v60 : BitVec 32 := Scalar.addi v53 c2_i32_37
  let c500_i32 : BitVec 32 := 500#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v2 : BitVec 32 := Scalar.subi c500_i32 v1
  let c32_i32 : BitVec 32 := 32#32
  let v3 : BitVec 32 := Scalar.addi v2 c32_i32
  let c1_i32 : BitVec 32 := 1#32
  let v4 : BitVec 32 := Scalar.subi v3 c1_i32
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c32_i32_0 : BitVec 32 := 32#32
  let c0_i32_2 : BitVec 32 := 0#32
  let v11 : BitVec 1 := Scalar.cmpi .sgt c32_i32_0 c0_i32_2
  let v12 : BitVec 32 := Scalar.extui v11
  let c0_i32_3 : BitVec 32 := 0#32
  let v13 : BitVec 1 := Scalar.cmpi .slt c32_i32_0 c0_i32_3
  let v14 : BitVec 32 := Scalar.extui v13
  let v15 : BitVec 32 := Scalar.subi v12 v14
  let v16 : BitVec 1 := Scalar.cmpi .ne v10 v15
  let v17 : BitVec 32 := Scalar.remsi v4 c32_i32_0
  let c0_i32_4 : BitVec 32 := 0#32
  let v18 : BitVec 1 := Scalar.cmpi .ne v17 c0_i32_4
  let v19 : BitVec 1 := Scalar.andi v16 v18
  let v5 : BitVec 32 := Scalar.divsi v4 c32_i32_0
  let c1_i32_5 : BitVec 32 := 1#32
  let v20 : BitVec 32 := Scalar.subi v5 c1_i32_5
  let v21 : BitVec 32 := Scalar.select v19 v20 v5
  let v61 : BitVec 1 := Scalar.cmpi .slt v60 v21
  let v62 : BitVec 32 := Scalar.extui v61
  let c0_i32_38 : BitVec 32 := 0#32
  let v63 : BitVec 1 := Scalar.cmpi .ne v62 c0_i32_38
  v63

def k6_off11 (i : grid6.Coords) (k6_t1 : Fin k6_t1_loop.trips) : Fin 2 → Nat :=
  let c6_i32_44 : BitVec 32 := 6#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_21 : BitVec 32 := 0#32
  let c1_i32_22 : BitVec 32 := 1#32
  let arg12 : BitVec 32 := Scf.iv c0_i32_21 c1_i32_22 k6_t1
  let c2_i32_32 : BitVec 32 := 2#32
  let v52 : BitVec 32 := Scalar.muli arg12 c2_i32_32
  let c1_i32_33 : BitVec 32 := 1#32
  let v53 : BitVec 32 := Scalar.addi v52 c1_i32_33
  let c2_i32_39 : BitVec 32 := 2#32
  let v64 : BitVec 32 := Scalar.addi v53 c2_i32_39
  let c32_i32_40 : BitVec 32 := 32#32
  let v65 : BitVec 32 := Scalar.muli v64 c32_i32_40
  let v66 : BitVec 32 := Scalar.addi v1 v65
  let c3200_i32_41 : BitVec 32 := 3200#32
  let v67 : BitVec 32 := Scalar.muli v66 c3200_i32_41
  ![6, v67.toNat]
def k6_cond7 (i : grid6.Coords) : BitVec 1 :=
  let c500_i32 : BitVec 32 := 500#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v2 : BitVec 32 := Scalar.subi c500_i32 v1
  let c32_i32 : BitVec 32 := 32#32
  let v3 : BitVec 32 := Scalar.addi v2 c32_i32
  let c1_i32 : BitVec 32 := 1#32
  let v4 : BitVec 32 := Scalar.subi v3 c1_i32
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c32_i32_0 : BitVec 32 := 32#32
  let c0_i32_2 : BitVec 32 := 0#32
  let v11 : BitVec 1 := Scalar.cmpi .sgt c32_i32_0 c0_i32_2
  let v12 : BitVec 32 := Scalar.extui v11
  let c0_i32_3 : BitVec 32 := 0#32
  let v13 : BitVec 1 := Scalar.cmpi .slt c32_i32_0 c0_i32_3
  let v14 : BitVec 32 := Scalar.extui v13
  let v15 : BitVec 32 := Scalar.subi v12 v14
  let v16 : BitVec 1 := Scalar.cmpi .ne v10 v15
  let v17 : BitVec 32 := Scalar.remsi v4 c32_i32_0
  let c0_i32_4 : BitVec 32 := 0#32
  let v18 : BitVec 1 := Scalar.cmpi .ne v17 c0_i32_4
  let v19 : BitVec 1 := Scalar.andi v16 v18
  let v5 : BitVec 32 := Scalar.divsi v4 c32_i32_0
  let c1_i32_5 : BitVec 32 := 1#32
  let v20 : BitVec 32 := Scalar.subi v5 c1_i32_5
  let v21 : BitVec 32 := Scalar.select v19 v20 v5
  let c14_i32 : BitVec 32 := 14#32
  let v35 : BitVec 1 := Scalar.cmpi .sgt v21 c14_i32
  let v36 : BitVec 32 := Scalar.extui v35
  let c0_i32_24 : BitVec 32 := 0#32
  let v37 : BitVec 1 := Scalar.cmpi .ne v36 c0_i32_24
  v37

def k6_off12 (i : grid6.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c448_i32 : BitVec 32 := 448#32
  let v41 : BitVec 32 := Scalar.addi v1 c448_i32
  let c3200_i32_26 : BitVec 32 := 3200#32
  let v42 : BitVec 32 := Scalar.muli v41 c3200_i32_26
  ![v42.toNat]
def k6_cond8 (i : grid6.Coords) : BitVec 1 :=
  let c500_i32 : BitVec 32 := 500#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v2 : BitVec 32 := Scalar.subi c500_i32 v1
  let c32_i32 : BitVec 32 := 32#32
  let v3 : BitVec 32 := Scalar.addi v2 c32_i32
  let c1_i32 : BitVec 32 := 1#32
  let v4 : BitVec 32 := Scalar.subi v3 c1_i32
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c32_i32_0 : BitVec 32 := 32#32
  let c0_i32_2 : BitVec 32 := 0#32
  let v11 : BitVec 1 := Scalar.cmpi .sgt c32_i32_0 c0_i32_2
  let v12 : BitVec 32 := Scalar.extui v11
  let c0_i32_3 : BitVec 32 := 0#32
  let v13 : BitVec 1 := Scalar.cmpi .slt c32_i32_0 c0_i32_3
  let v14 : BitVec 32 := Scalar.extui v13
  let v15 : BitVec 32 := Scalar.subi v12 v14
  let v16 : BitVec 1 := Scalar.cmpi .ne v10 v15
  let v17 : BitVec 32 := Scalar.remsi v4 c32_i32_0
  let c0_i32_4 : BitVec 32 := 0#32
  let v18 : BitVec 1 := Scalar.cmpi .ne v17 c0_i32_4
  let v19 : BitVec 1 := Scalar.andi v16 v18
  let v5 : BitVec 32 := Scalar.divsi v4 c32_i32_0
  let c1_i32_5 : BitVec 32 := 1#32
  let v20 : BitVec 32 := Scalar.subi v5 c1_i32_5
  let v21 : BitVec 32 := Scalar.select v19 v20 v5
  let c15_i32 : BitVec 32 := 15#32
  let v38 : BitVec 1 := Scalar.cmpi .sgt v21 c15_i32
  let v39 : BitVec 32 := Scalar.extui v38
  let c0_i32_25 : BitVec 32 := 0#32
  let v40 : BitVec 1 := Scalar.cmpi .ne v39 c0_i32_25
  v40

def k6_off13 (i : grid6.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c480_i32 : BitVec 32 := 480#32
  let v41 : BitVec 32 := Scalar.addi v1 c480_i32
  let c3200_i32_26 : BitVec 32 := 3200#32
  let v42 : BitVec 32 := Scalar.muli v41 c3200_i32_26
  ![v42.toNat]
abbrev grid7 : Pipeline.Grid := ⟨2, ![2, 16], ![false, false]⟩

def k7_off1 (i : grid7.Coords) (c0_i32_6 : BitVec 32) : Fin 2 → Nat :=
  let c7_i32 : BitVec 32 := 7#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v22 : BitVec 32 := Scalar.addi v1 c0_i32_6
  let c3200_i32 : BitVec 32 := 3200#32
  let v23 : BitVec 32 := Scalar.muli v22 c3200_i32
  ![7, v23.toNat]
@[reducible] def k7_t1_loop : Scf.Loop 32 :=
  let c0_i32_21 : BitVec 32 := 0#32
  let c8_i32 : BitVec 32 := 8#32
  let v34 : BitVec 32 := Scalar.addi c0_i32_21 c8_i32
  let c1_i32_22 : BitVec 32 := 1#32
  ⟨c0_i32_21, v34, c1_i32_22⟩
def k7_cond1 (k7_t1 : Fin k7_t1_loop.trips) : BitVec 1 :=
  let c0_i32_21 : BitVec 32 := 0#32
  let c1_i32_22 : BitVec 32 := 1#32
  let arg12 : BitVec 32 := Scf.iv c0_i32_21 c1_i32_22 k7_t1
  let c2_i32_26 : BitVec 32 := 2#32
  let v41 : BitVec 32 := Scalar.muli arg12 c2_i32_26
  let c2_i32_27 : BitVec 32 := 2#32
  let v42 : BitVec 1 := Scalar.cmpi .sge v41 c2_i32_27
  let v43 : BitVec 32 := Scalar.extui v42
  let c0_i32_28 : BitVec 32 := 0#32
  let v44 : BitVec 1 := Scalar.cmpi .ne v43 c0_i32_28
  v44

def k7_off2 (i : grid7.Coords) (k7_t1 : Fin k7_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_21 : BitVec 32 := 0#32
  let c1_i32_22 : BitVec 32 := 1#32
  let arg12 : BitVec 32 := Scf.iv c0_i32_21 c1_i32_22 k7_t1
  let c2_i32_26 : BitVec 32 := 2#32
  let v41 : BitVec 32 := Scalar.muli arg12 c2_i32_26
  let c2_i32_39 : BitVec 32 := 2#32
  let v64 : BitVec 32 := Scalar.subi v41 c2_i32_39
  let c32_i32_40 : BitVec 32 := 32#32
  let v65 : BitVec 32 := Scalar.muli v64 c32_i32_40
  let v66 : BitVec 32 := Scalar.addi v1 v65
  let c3200_i32_41 : BitVec 32 := 3200#32
  let v67 : BitVec 32 := Scalar.muli v66 c3200_i32_41
  ![v67.toNat]
def k7_cond2 (i : grid7.Coords) (k7_t1 : Fin k7_t1_loop.trips) : BitVec 1 :=
  let c0_i32_21 : BitVec 32 := 0#32
  let c1_i32_22 : BitVec 32 := 1#32
  let arg12 : BitVec 32 := Scf.iv c0_i32_21 c1_i32_22 k7_t1
  let c2_i32_26 : BitVec 32 := 2#32
  let v41 : BitVec 32 := Scalar.muli arg12 c2_i32_26
  let c500_i32 : BitVec 32 := 500#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v2 : BitVec 32 := Scalar.subi c500_i32 v1
  let c32_i32 : BitVec 32 := 32#32
  let v3 : BitVec 32 := Scalar.addi v2 c32_i32
  let c1_i32 : BitVec 32 := 1#32
  let v4 : BitVec 32 := Scalar.subi v3 c1_i32
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c32_i32_0 : BitVec 32 := 32#32
  let c0_i32_2 : BitVec 32 := 0#32
  let v11 : BitVec 1 := Scalar.cmpi .sgt c32_i32_0 c0_i32_2
  let v12 : BitVec 32 := Scalar.extui v11
  let c0_i32_3 : BitVec 32 := 0#32
  let v13 : BitVec 1 := Scalar.cmpi .slt c32_i32_0 c0_i32_3
  let v14 : BitVec 32 := Scalar.extui v13
  let v15 : BitVec 32 := Scalar.subi v12 v14
  let v16 : BitVec 1 := Scalar.cmpi .ne v10 v15
  let v17 : BitVec 32 := Scalar.remsi v4 c32_i32_0
  let c0_i32_4 : BitVec 32 := 0#32
  let v18 : BitVec 1 := Scalar.cmpi .ne v17 c0_i32_4
  let v19 : BitVec 1 := Scalar.andi v16 v18
  let v5 : BitVec 32 := Scalar.divsi v4 c32_i32_0
  let c1_i32_5 : BitVec 32 := 1#32
  let v20 : BitVec 32 := Scalar.subi v5 c1_i32_5
  let v21 : BitVec 32 := Scalar.select v19 v20 v5
  let v45 : BitVec 1 := Scalar.cmpi .slt v41 v21
  let v46 : BitVec 32 := Scalar.extui v45
  let c0_i32_29 : BitVec 32 := 0#32
  let v47 : BitVec 1 := Scalar.cmpi .ne v46 c0_i32_29
  v47

@[reducible] def k7_t2_loop : Scf.Loop 32 :=
  let c0_i32_48 : BitVec 32 := 0#32
  let c200_i32 : BitVec 32 := 200#32
  let v68 : BitVec 32 := Scalar.addi c0_i32_48 c200_i32
  let c1_i32_49 : BitVec 32 := 1#32
  ⟨c0_i32_48, v68, c1_i32_49⟩
def k7_off3 (k7_t2 : Fin k7_t2_loop.trips) : Fin 2 → Nat :=
  let c0_i32_55 : BitVec 32 := 0#32
  let v77 : Index := Scalar.indexCast c0_i32_55
  let c0_i32_48 : BitVec 32 := 0#32
  let c1_i32_49 : BitVec 32 := 1#32
  let arg13 : BitVec 32 := Scf.iv c0_i32_48 c1_i32_49 k7_t2
  let c16_i32 : BitVec 32 := 16#32
  let v76 : BitVec 32 := Scalar.muli arg13 c16_i32
  let v78 : Index := Scalar.indexCast v76
  ![0, v78.toNat]
def k7_off4 (k7_t2 : Fin k7_t2_loop.trips) : Fin 1 → Nat :=
  let c0_i32_57 : BitVec 32 := 0#32
  let c0_i32_48 : BitVec 32 := 0#32
  let c1_i32_49 : BitVec 32 := 1#32
  let arg13 : BitVec 32 := Scf.iv c0_i32_48 c1_i32_49 k7_t2
  let c16_i32_56 : BitVec 32 := 16#32
  let v80 : BitVec 32 := Scalar.muli arg13 c16_i32_56
  let v81 : BitVec 32 := Scalar.addi c0_i32_57 v80
  let v82 : Index := Scalar.indexCast v81
  ![v82.toNat]
def k7_off5 (i : grid7.Coords) (k7_t1 : Fin k7_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_21 : BitVec 32 := 0#32
  let c1_i32_22 : BitVec 32 := 1#32
  let arg12 : BitVec 32 := Scf.iv c0_i32_21 c1_i32_22 k7_t1
  let c2_i32_26 : BitVec 32 := 2#32
  let v41 : BitVec 32 := Scalar.muli arg12 c2_i32_26
  let c32_i32_51 : BitVec 32 := 32#32
  let v69 : BitVec 32 := Scalar.muli v41 c32_i32_51
  let v70 : BitVec 32 := Scalar.addi v1 v69
  let c3200_i32_52 : BitVec 32 := 3200#32
  let v71 : BitVec 32 := Scalar.muli v70 c3200_i32_52
  ![v71.toNat]
def k7_cond3 (i : grid7.Coords) (k7_t1 : Fin k7_t1_loop.trips) : BitVec 1 :=
  let c0_i32_21 : BitVec 32 := 0#32
  let c1_i32_22 : BitVec 32 := 1#32
  let arg12 : BitVec 32 := Scf.iv c0_i32_21 c1_i32_22 k7_t1
  let c2_i32_26 : BitVec 32 := 2#32
  let v41 : BitVec 32 := Scalar.muli arg12 c2_i32_26
  let c2_i32_30 : BitVec 32 := 2#32
  let v48 : BitVec 32 := Scalar.addi v41 c2_i32_30
  let c500_i32 : BitVec 32 := 500#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v2 : BitVec 32 := Scalar.subi c500_i32 v1
  let c32_i32 : BitVec 32 := 32#32
  let v3 : BitVec 32 := Scalar.addi v2 c32_i32
  let c1_i32 : BitVec 32 := 1#32
  let v4 : BitVec 32 := Scalar.subi v3 c1_i32
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c32_i32_0 : BitVec 32 := 32#32
  let c0_i32_2 : BitVec 32 := 0#32
  let v11 : BitVec 1 := Scalar.cmpi .sgt c32_i32_0 c0_i32_2
  let v12 : BitVec 32 := Scalar.extui v11
  let c0_i32_3 : BitVec 32 := 0#32
  let v13 : BitVec 1 := Scalar.cmpi .slt c32_i32_0 c0_i32_3
  let v14 : BitVec 32 := Scalar.extui v13
  let v15 : BitVec 32 := Scalar.subi v12 v14
  let v16 : BitVec 1 := Scalar.cmpi .ne v10 v15
  let v17 : BitVec 32 := Scalar.remsi v4 c32_i32_0
  let c0_i32_4 : BitVec 32 := 0#32
  let v18 : BitVec 1 := Scalar.cmpi .ne v17 c0_i32_4
  let v19 : BitVec 1 := Scalar.andi v16 v18
  let v5 : BitVec 32 := Scalar.divsi v4 c32_i32_0
  let c1_i32_5 : BitVec 32 := 1#32
  let v20 : BitVec 32 := Scalar.subi v5 c1_i32_5
  let v21 : BitVec 32 := Scalar.select v19 v20 v5
  let v49 : BitVec 1 := Scalar.cmpi .slt v48 v21
  let v50 : BitVec 32 := Scalar.extui v49
  let c0_i32_31 : BitVec 32 := 0#32
  let v51 : BitVec 1 := Scalar.cmpi .ne v50 c0_i32_31
  v51

def k7_off6 (i : grid7.Coords) (k7_t1 : Fin k7_t1_loop.trips) : Fin 2 → Nat :=
  let c7_i32_44 : BitVec 32 := 7#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_21 : BitVec 32 := 0#32
  let c1_i32_22 : BitVec 32 := 1#32
  let arg12 : BitVec 32 := Scf.iv c0_i32_21 c1_i32_22 k7_t1
  let c2_i32_26 : BitVec 32 := 2#32
  let v41 : BitVec 32 := Scalar.muli arg12 c2_i32_26
  let c2_i32_39 : BitVec 32 := 2#32
  let v64 : BitVec 32 := Scalar.addi v41 c2_i32_39
  let c32_i32_40 : BitVec 32 := 32#32
  let v65 : BitVec 32 := Scalar.muli v64 c32_i32_40
  let v66 : BitVec 32 := Scalar.addi v1 v65
  let c3200_i32_41 : BitVec 32 := 3200#32
  let v67 : BitVec 32 := Scalar.muli v66 c3200_i32_41
  ![7, v67.toNat]
def k7_cond4 (k7_t1 : Fin k7_t1_loop.trips) : BitVec 1 :=
  let c0_i32_21 : BitVec 32 := 0#32
  let c1_i32_22 : BitVec 32 := 1#32
  let arg12 : BitVec 32 := Scf.iv c0_i32_21 c1_i32_22 k7_t1
  let c2_i32_32 : BitVec 32 := 2#32
  let v52 : BitVec 32 := Scalar.muli arg12 c2_i32_32
  let c1_i32_33 : BitVec 32 := 1#32
  let v53 : BitVec 32 := Scalar.addi v52 c1_i32_33
  let c2_i32_34 : BitVec 32 := 2#32
  let v54 : BitVec 1 := Scalar.cmpi .sge v53 c2_i32_34
  let v55 : BitVec 32 := Scalar.extui v54
  let c0_i32_35 : BitVec 32 := 0#32
  let v56 : BitVec 1 := Scalar.cmpi .ne v55 c0_i32_35
  v56

def k7_off7 (i : grid7.Coords) (k7_t1 : Fin k7_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_21 : BitVec 32 := 0#32
  let c1_i32_22 : BitVec 32 := 1#32
  let arg12 : BitVec 32 := Scf.iv c0_i32_21 c1_i32_22 k7_t1
  let c2_i32_32 : BitVec 32 := 2#32
  let v52 : BitVec 32 := Scalar.muli arg12 c2_i32_32
  let c1_i32_33 : BitVec 32 := 1#32
  let v53 : BitVec 32 := Scalar.addi v52 c1_i32_33
  let c2_i32_39 : BitVec 32 := 2#32
  let v64 : BitVec 32 := Scalar.subi v53 c2_i32_39
  let c32_i32_40 : BitVec 32 := 32#32
  let v65 : BitVec 32 := Scalar.muli v64 c32_i32_40
  let v66 : BitVec 32 := Scalar.addi v1 v65
  let c3200_i32_41 : BitVec 32 := 3200#32
  let v67 : BitVec 32 := Scalar.muli v66 c3200_i32_41
  ![v67.toNat]
def k7_cond5 (i : grid7.Coords) (k7_t1 : Fin k7_t1_loop.trips) : BitVec 1 :=
  let c0_i32_21 : BitVec 32 := 0#32
  let c1_i32_22 : BitVec 32 := 1#32
  let arg12 : BitVec 32 := Scf.iv c0_i32_21 c1_i32_22 k7_t1
  let c2_i32_32 : BitVec 32 := 2#32
  let v52 : BitVec 32 := Scalar.muli arg12 c2_i32_32
  let c1_i32_33 : BitVec 32 := 1#32
  let v53 : BitVec 32 := Scalar.addi v52 c1_i32_33
  let c500_i32 : BitVec 32 := 500#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v2 : BitVec 32 := Scalar.subi c500_i32 v1
  let c32_i32 : BitVec 32 := 32#32
  let v3 : BitVec 32 := Scalar.addi v2 c32_i32
  let c1_i32 : BitVec 32 := 1#32
  let v4 : BitVec 32 := Scalar.subi v3 c1_i32
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c32_i32_0 : BitVec 32 := 32#32
  let c0_i32_2 : BitVec 32 := 0#32
  let v11 : BitVec 1 := Scalar.cmpi .sgt c32_i32_0 c0_i32_2
  let v12 : BitVec 32 := Scalar.extui v11
  let c0_i32_3 : BitVec 32 := 0#32
  let v13 : BitVec 1 := Scalar.cmpi .slt c32_i32_0 c0_i32_3
  let v14 : BitVec 32 := Scalar.extui v13
  let v15 : BitVec 32 := Scalar.subi v12 v14
  let v16 : BitVec 1 := Scalar.cmpi .ne v10 v15
  let v17 : BitVec 32 := Scalar.remsi v4 c32_i32_0
  let c0_i32_4 : BitVec 32 := 0#32
  let v18 : BitVec 1 := Scalar.cmpi .ne v17 c0_i32_4
  let v19 : BitVec 1 := Scalar.andi v16 v18
  let v5 : BitVec 32 := Scalar.divsi v4 c32_i32_0
  let c1_i32_5 : BitVec 32 := 1#32
  let v20 : BitVec 32 := Scalar.subi v5 c1_i32_5
  let v21 : BitVec 32 := Scalar.select v19 v20 v5
  let v57 : BitVec 1 := Scalar.cmpi .slt v53 v21
  let v58 : BitVec 32 := Scalar.extui v57
  let c0_i32_36 : BitVec 32 := 0#32
  let v59 : BitVec 1 := Scalar.cmpi .ne v58 c0_i32_36
  v59

@[reducible] def k7_t3_loop : Scf.Loop 32 :=
  let c0_i32_48 : BitVec 32 := 0#32
  let c200_i32 : BitVec 32 := 200#32
  let v68 : BitVec 32 := Scalar.addi c0_i32_48 c200_i32
  let c1_i32_49 : BitVec 32 := 1#32
  ⟨c0_i32_48, v68, c1_i32_49⟩
def k7_off8 (k7_t3 : Fin k7_t3_loop.trips) : Fin 2 → Nat :=
  let c0_i32_55 : BitVec 32 := 0#32
  let v77 : Index := Scalar.indexCast c0_i32_55
  let c0_i32_48 : BitVec 32 := 0#32
  let c1_i32_49 : BitVec 32 := 1#32
  let arg13 : BitVec 32 := Scf.iv c0_i32_48 c1_i32_49 k7_t3
  let c16_i32 : BitVec 32 := 16#32
  let v76 : BitVec 32 := Scalar.muli arg13 c16_i32
  let v78 : Index := Scalar.indexCast v76
  ![0, v78.toNat]
def k7_off9 (k7_t3 : Fin k7_t3_loop.trips) : Fin 1 → Nat :=
  let c0_i32_57 : BitVec 32 := 0#32
  let c0_i32_48 : BitVec 32 := 0#32
  let c1_i32_49 : BitVec 32 := 1#32
  let arg13 : BitVec 32 := Scf.iv c0_i32_48 c1_i32_49 k7_t3
  let c16_i32_56 : BitVec 32 := 16#32
  let v80 : BitVec 32 := Scalar.muli arg13 c16_i32_56
  let v81 : BitVec 32 := Scalar.addi c0_i32_57 v80
  let v82 : Index := Scalar.indexCast v81
  ![v82.toNat]
def k7_off10 (i : grid7.Coords) (k7_t1 : Fin k7_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_21 : BitVec 32 := 0#32
  let c1_i32_22 : BitVec 32 := 1#32
  let arg12 : BitVec 32 := Scf.iv c0_i32_21 c1_i32_22 k7_t1
  let c2_i32_32 : BitVec 32 := 2#32
  let v52 : BitVec 32 := Scalar.muli arg12 c2_i32_32
  let c1_i32_33 : BitVec 32 := 1#32
  let v53 : BitVec 32 := Scalar.addi v52 c1_i32_33
  let c32_i32_51 : BitVec 32 := 32#32
  let v69 : BitVec 32 := Scalar.muli v53 c32_i32_51
  let v70 : BitVec 32 := Scalar.addi v1 v69
  let c3200_i32_52 : BitVec 32 := 3200#32
  let v71 : BitVec 32 := Scalar.muli v70 c3200_i32_52
  ![v71.toNat]
def k7_cond6 (i : grid7.Coords) (k7_t1 : Fin k7_t1_loop.trips) : BitVec 1 :=
  let c0_i32_21 : BitVec 32 := 0#32
  let c1_i32_22 : BitVec 32 := 1#32
  let arg12 : BitVec 32 := Scf.iv c0_i32_21 c1_i32_22 k7_t1
  let c2_i32_32 : BitVec 32 := 2#32
  let v52 : BitVec 32 := Scalar.muli arg12 c2_i32_32
  let c1_i32_33 : BitVec 32 := 1#32
  let v53 : BitVec 32 := Scalar.addi v52 c1_i32_33
  let c2_i32_37 : BitVec 32 := 2#32
  let v60 : BitVec 32 := Scalar.addi v53 c2_i32_37
  let c500_i32 : BitVec 32 := 500#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v2 : BitVec 32 := Scalar.subi c500_i32 v1
  let c32_i32 : BitVec 32 := 32#32
  let v3 : BitVec 32 := Scalar.addi v2 c32_i32
  let c1_i32 : BitVec 32 := 1#32
  let v4 : BitVec 32 := Scalar.subi v3 c1_i32
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c32_i32_0 : BitVec 32 := 32#32
  let c0_i32_2 : BitVec 32 := 0#32
  let v11 : BitVec 1 := Scalar.cmpi .sgt c32_i32_0 c0_i32_2
  let v12 : BitVec 32 := Scalar.extui v11
  let c0_i32_3 : BitVec 32 := 0#32
  let v13 : BitVec 1 := Scalar.cmpi .slt c32_i32_0 c0_i32_3
  let v14 : BitVec 32 := Scalar.extui v13
  let v15 : BitVec 32 := Scalar.subi v12 v14
  let v16 : BitVec 1 := Scalar.cmpi .ne v10 v15
  let v17 : BitVec 32 := Scalar.remsi v4 c32_i32_0
  let c0_i32_4 : BitVec 32 := 0#32
  let v18 : BitVec 1 := Scalar.cmpi .ne v17 c0_i32_4
  let v19 : BitVec 1 := Scalar.andi v16 v18
  let v5 : BitVec 32 := Scalar.divsi v4 c32_i32_0
  let c1_i32_5 : BitVec 32 := 1#32
  let v20 : BitVec 32 := Scalar.subi v5 c1_i32_5
  let v21 : BitVec 32 := Scalar.select v19 v20 v5
  let v61 : BitVec 1 := Scalar.cmpi .slt v60 v21
  let v62 : BitVec 32 := Scalar.extui v61
  let c0_i32_38 : BitVec 32 := 0#32
  let v63 : BitVec 1 := Scalar.cmpi .ne v62 c0_i32_38
  v63

def k7_off11 (i : grid7.Coords) (k7_t1 : Fin k7_t1_loop.trips) : Fin 2 → Nat :=
  let c7_i32_44 : BitVec 32 := 7#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_21 : BitVec 32 := 0#32
  let c1_i32_22 : BitVec 32 := 1#32
  let arg12 : BitVec 32 := Scf.iv c0_i32_21 c1_i32_22 k7_t1
  let c2_i32_32 : BitVec 32 := 2#32
  let v52 : BitVec 32 := Scalar.muli arg12 c2_i32_32
  let c1_i32_33 : BitVec 32 := 1#32
  let v53 : BitVec 32 := Scalar.addi v52 c1_i32_33
  let c2_i32_39 : BitVec 32 := 2#32
  let v64 : BitVec 32 := Scalar.addi v53 c2_i32_39
  let c32_i32_40 : BitVec 32 := 32#32
  let v65 : BitVec 32 := Scalar.muli v64 c32_i32_40
  let v66 : BitVec 32 := Scalar.addi v1 v65
  let c3200_i32_41 : BitVec 32 := 3200#32
  let v67 : BitVec 32 := Scalar.muli v66 c3200_i32_41
  ![7, v67.toNat]
def k7_cond7 (i : grid7.Coords) : BitVec 1 :=
  let c500_i32 : BitVec 32 := 500#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v2 : BitVec 32 := Scalar.subi c500_i32 v1
  let c32_i32 : BitVec 32 := 32#32
  let v3 : BitVec 32 := Scalar.addi v2 c32_i32
  let c1_i32 : BitVec 32 := 1#32
  let v4 : BitVec 32 := Scalar.subi v3 c1_i32
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c32_i32_0 : BitVec 32 := 32#32
  let c0_i32_2 : BitVec 32 := 0#32
  let v11 : BitVec 1 := Scalar.cmpi .sgt c32_i32_0 c0_i32_2
  let v12 : BitVec 32 := Scalar.extui v11
  let c0_i32_3 : BitVec 32 := 0#32
  let v13 : BitVec 1 := Scalar.cmpi .slt c32_i32_0 c0_i32_3
  let v14 : BitVec 32 := Scalar.extui v13
  let v15 : BitVec 32 := Scalar.subi v12 v14
  let v16 : BitVec 1 := Scalar.cmpi .ne v10 v15
  let v17 : BitVec 32 := Scalar.remsi v4 c32_i32_0
  let c0_i32_4 : BitVec 32 := 0#32
  let v18 : BitVec 1 := Scalar.cmpi .ne v17 c0_i32_4
  let v19 : BitVec 1 := Scalar.andi v16 v18
  let v5 : BitVec 32 := Scalar.divsi v4 c32_i32_0
  let c1_i32_5 : BitVec 32 := 1#32
  let v20 : BitVec 32 := Scalar.subi v5 c1_i32_5
  let v21 : BitVec 32 := Scalar.select v19 v20 v5
  let c14_i32 : BitVec 32 := 14#32
  let v35 : BitVec 1 := Scalar.cmpi .sgt v21 c14_i32
  let v36 : BitVec 32 := Scalar.extui v35
  let c0_i32_24 : BitVec 32 := 0#32
  let v37 : BitVec 1 := Scalar.cmpi .ne v36 c0_i32_24
  v37

def k7_off12 (i : grid7.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c448_i32 : BitVec 32 := 448#32
  let v41 : BitVec 32 := Scalar.addi v1 c448_i32
  let c3200_i32_26 : BitVec 32 := 3200#32
  let v42 : BitVec 32 := Scalar.muli v41 c3200_i32_26
  ![v42.toNat]
def k7_cond8 (i : grid7.Coords) : BitVec 1 :=
  let c500_i32 : BitVec 32 := 500#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v2 : BitVec 32 := Scalar.subi c500_i32 v1
  let c32_i32 : BitVec 32 := 32#32
  let v3 : BitVec 32 := Scalar.addi v2 c32_i32
  let c1_i32 : BitVec 32 := 1#32
  let v4 : BitVec 32 := Scalar.subi v3 c1_i32
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c32_i32_0 : BitVec 32 := 32#32
  let c0_i32_2 : BitVec 32 := 0#32
  let v11 : BitVec 1 := Scalar.cmpi .sgt c32_i32_0 c0_i32_2
  let v12 : BitVec 32 := Scalar.extui v11
  let c0_i32_3 : BitVec 32 := 0#32
  let v13 : BitVec 1 := Scalar.cmpi .slt c32_i32_0 c0_i32_3
  let v14 : BitVec 32 := Scalar.extui v13
  let v15 : BitVec 32 := Scalar.subi v12 v14
  let v16 : BitVec 1 := Scalar.cmpi .ne v10 v15
  let v17 : BitVec 32 := Scalar.remsi v4 c32_i32_0
  let c0_i32_4 : BitVec 32 := 0#32
  let v18 : BitVec 1 := Scalar.cmpi .ne v17 c0_i32_4
  let v19 : BitVec 1 := Scalar.andi v16 v18
  let v5 : BitVec 32 := Scalar.divsi v4 c32_i32_0
  let c1_i32_5 : BitVec 32 := 1#32
  let v20 : BitVec 32 := Scalar.subi v5 c1_i32_5
  let v21 : BitVec 32 := Scalar.select v19 v20 v5
  let c15_i32 : BitVec 32 := 15#32
  let v38 : BitVec 1 := Scalar.cmpi .sgt v21 c15_i32
  let v39 : BitVec 32 := Scalar.extui v38
  let c0_i32_25 : BitVec 32 := 0#32
  let v40 : BitVec 1 := Scalar.cmpi .ne v39 c0_i32_25
  v40

def k7_off13 (i : grid7.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c480_i32 : BitVec 32 := 480#32
  let v41 : BitVec 32 := Scalar.addi v1 c480_i32
  let c3200_i32_26 : BitVec 32 := 3200#32
  let v42 : BitVec 32 := Scalar.muli v41 c3200_i32_26
  ![v42.toNat]
abbrev grid8 : Pipeline.Grid := ⟨2, ![2, 16], ![false, false]⟩

def k8_off1 (i : grid8.Coords) (c0_i32_6 : BitVec 32) : Fin 2 → Nat :=
  let c8_i32 : BitVec 32 := 8#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v22 : BitVec 32 := Scalar.addi v1 c0_i32_6
  let c3200_i32 : BitVec 32 := 3200#32
  let v23 : BitVec 32 := Scalar.muli v22 c3200_i32
  ![8, v23.toNat]
@[reducible] def k8_t1_loop : Scf.Loop 32 :=
  let c0_i32_21 : BitVec 32 := 0#32
  let c8_i32_22 : BitVec 32 := 8#32
  let v34 : BitVec 32 := Scalar.addi c0_i32_21 c8_i32_22
  let c1_i32_23 : BitVec 32 := 1#32
  ⟨c0_i32_21, v34, c1_i32_23⟩
def k8_cond1 (k8_t1 : Fin k8_t1_loop.trips) : BitVec 1 :=
  let c0_i32_21 : BitVec 32 := 0#32
  let c1_i32_23 : BitVec 32 := 1#32
  let arg12 : BitVec 32 := Scf.iv c0_i32_21 c1_i32_23 k8_t1
  let c2_i32_27 : BitVec 32 := 2#32
  let v41 : BitVec 32 := Scalar.muli arg12 c2_i32_27
  let c2_i32_28 : BitVec 32 := 2#32
  let v42 : BitVec 1 := Scalar.cmpi .sge v41 c2_i32_28
  let v43 : BitVec 32 := Scalar.extui v42
  let c0_i32_29 : BitVec 32 := 0#32
  let v44 : BitVec 1 := Scalar.cmpi .ne v43 c0_i32_29
  v44

def k8_off2 (i : grid8.Coords) (k8_t1 : Fin k8_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_21 : BitVec 32 := 0#32
  let c1_i32_23 : BitVec 32 := 1#32
  let arg12 : BitVec 32 := Scf.iv c0_i32_21 c1_i32_23 k8_t1
  let c2_i32_27 : BitVec 32 := 2#32
  let v41 : BitVec 32 := Scalar.muli arg12 c2_i32_27
  let c2_i32_40 : BitVec 32 := 2#32
  let v64 : BitVec 32 := Scalar.subi v41 c2_i32_40
  let c32_i32_41 : BitVec 32 := 32#32
  let v65 : BitVec 32 := Scalar.muli v64 c32_i32_41
  let v66 : BitVec 32 := Scalar.addi v1 v65
  let c3200_i32_42 : BitVec 32 := 3200#32
  let v67 : BitVec 32 := Scalar.muli v66 c3200_i32_42
  ![v67.toNat]
def k8_cond2 (i : grid8.Coords) (k8_t1 : Fin k8_t1_loop.trips) : BitVec 1 :=
  let c0_i32_21 : BitVec 32 := 0#32
  let c1_i32_23 : BitVec 32 := 1#32
  let arg12 : BitVec 32 := Scf.iv c0_i32_21 c1_i32_23 k8_t1
  let c2_i32_27 : BitVec 32 := 2#32
  let v41 : BitVec 32 := Scalar.muli arg12 c2_i32_27
  let c500_i32 : BitVec 32 := 500#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v2 : BitVec 32 := Scalar.subi c500_i32 v1
  let c32_i32 : BitVec 32 := 32#32
  let v3 : BitVec 32 := Scalar.addi v2 c32_i32
  let c1_i32 : BitVec 32 := 1#32
  let v4 : BitVec 32 := Scalar.subi v3 c1_i32
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c32_i32_0 : BitVec 32 := 32#32
  let c0_i32_2 : BitVec 32 := 0#32
  let v11 : BitVec 1 := Scalar.cmpi .sgt c32_i32_0 c0_i32_2
  let v12 : BitVec 32 := Scalar.extui v11
  let c0_i32_3 : BitVec 32 := 0#32
  let v13 : BitVec 1 := Scalar.cmpi .slt c32_i32_0 c0_i32_3
  let v14 : BitVec 32 := Scalar.extui v13
  let v15 : BitVec 32 := Scalar.subi v12 v14
  let v16 : BitVec 1 := Scalar.cmpi .ne v10 v15
  let v17 : BitVec 32 := Scalar.remsi v4 c32_i32_0
  let c0_i32_4 : BitVec 32 := 0#32
  let v18 : BitVec 1 := Scalar.cmpi .ne v17 c0_i32_4
  let v19 : BitVec 1 := Scalar.andi v16 v18
  let v5 : BitVec 32 := Scalar.divsi v4 c32_i32_0
  let c1_i32_5 : BitVec 32 := 1#32
  let v20 : BitVec 32 := Scalar.subi v5 c1_i32_5
  let v21 : BitVec 32 := Scalar.select v19 v20 v5
  let v45 : BitVec 1 := Scalar.cmpi .slt v41 v21
  let v46 : BitVec 32 := Scalar.extui v45
  let c0_i32_30 : BitVec 32 := 0#32
  let v47 : BitVec 1 := Scalar.cmpi .ne v46 c0_i32_30
  v47

@[reducible] def k8_t2_loop : Scf.Loop 32 :=
  let c0_i32_49 : BitVec 32 := 0#32
  let c200_i32 : BitVec 32 := 200#32
  let v68 : BitVec 32 := Scalar.addi c0_i32_49 c200_i32
  let c1_i32_50 : BitVec 32 := 1#32
  ⟨c0_i32_49, v68, c1_i32_50⟩
def k8_off3 (k8_t2 : Fin k8_t2_loop.trips) : Fin 2 → Nat :=
  let c0_i32_56 : BitVec 32 := 0#32
  let v77 : Index := Scalar.indexCast c0_i32_56
  let c0_i32_49 : BitVec 32 := 0#32
  let c1_i32_50 : BitVec 32 := 1#32
  let arg13 : BitVec 32 := Scf.iv c0_i32_49 c1_i32_50 k8_t2
  let c16_i32 : BitVec 32 := 16#32
  let v76 : BitVec 32 := Scalar.muli arg13 c16_i32
  let v78 : Index := Scalar.indexCast v76
  ![0, v78.toNat]
def k8_off4 (k8_t2 : Fin k8_t2_loop.trips) : Fin 1 → Nat :=
  let c0_i32_58 : BitVec 32 := 0#32
  let c0_i32_49 : BitVec 32 := 0#32
  let c1_i32_50 : BitVec 32 := 1#32
  let arg13 : BitVec 32 := Scf.iv c0_i32_49 c1_i32_50 k8_t2
  let c16_i32_57 : BitVec 32 := 16#32
  let v80 : BitVec 32 := Scalar.muli arg13 c16_i32_57
  let v81 : BitVec 32 := Scalar.addi c0_i32_58 v80
  let v82 : Index := Scalar.indexCast v81
  ![v82.toNat]
def k8_off5 (i : grid8.Coords) (k8_t1 : Fin k8_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_21 : BitVec 32 := 0#32
  let c1_i32_23 : BitVec 32 := 1#32
  let arg12 : BitVec 32 := Scf.iv c0_i32_21 c1_i32_23 k8_t1
  let c2_i32_27 : BitVec 32 := 2#32
  let v41 : BitVec 32 := Scalar.muli arg12 c2_i32_27
  let c32_i32_52 : BitVec 32 := 32#32
  let v69 : BitVec 32 := Scalar.muli v41 c32_i32_52
  let v70 : BitVec 32 := Scalar.addi v1 v69
  let c3200_i32_53 : BitVec 32 := 3200#32
  let v71 : BitVec 32 := Scalar.muli v70 c3200_i32_53
  ![v71.toNat]
def k8_cond3 (i : grid8.Coords) (k8_t1 : Fin k8_t1_loop.trips) : BitVec 1 :=
  let c0_i32_21 : BitVec 32 := 0#32
  let c1_i32_23 : BitVec 32 := 1#32
  let arg12 : BitVec 32 := Scf.iv c0_i32_21 c1_i32_23 k8_t1
  let c2_i32_27 : BitVec 32 := 2#32
  let v41 : BitVec 32 := Scalar.muli arg12 c2_i32_27
  let c2_i32_31 : BitVec 32 := 2#32
  let v48 : BitVec 32 := Scalar.addi v41 c2_i32_31
  let c500_i32 : BitVec 32 := 500#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v2 : BitVec 32 := Scalar.subi c500_i32 v1
  let c32_i32 : BitVec 32 := 32#32
  let v3 : BitVec 32 := Scalar.addi v2 c32_i32
  let c1_i32 : BitVec 32 := 1#32
  let v4 : BitVec 32 := Scalar.subi v3 c1_i32
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c32_i32_0 : BitVec 32 := 32#32
  let c0_i32_2 : BitVec 32 := 0#32
  let v11 : BitVec 1 := Scalar.cmpi .sgt c32_i32_0 c0_i32_2
  let v12 : BitVec 32 := Scalar.extui v11
  let c0_i32_3 : BitVec 32 := 0#32
  let v13 : BitVec 1 := Scalar.cmpi .slt c32_i32_0 c0_i32_3
  let v14 : BitVec 32 := Scalar.extui v13
  let v15 : BitVec 32 := Scalar.subi v12 v14
  let v16 : BitVec 1 := Scalar.cmpi .ne v10 v15
  let v17 : BitVec 32 := Scalar.remsi v4 c32_i32_0
  let c0_i32_4 : BitVec 32 := 0#32
  let v18 : BitVec 1 := Scalar.cmpi .ne v17 c0_i32_4
  let v19 : BitVec 1 := Scalar.andi v16 v18
  let v5 : BitVec 32 := Scalar.divsi v4 c32_i32_0
  let c1_i32_5 : BitVec 32 := 1#32
  let v20 : BitVec 32 := Scalar.subi v5 c1_i32_5
  let v21 : BitVec 32 := Scalar.select v19 v20 v5
  let v49 : BitVec 1 := Scalar.cmpi .slt v48 v21
  let v50 : BitVec 32 := Scalar.extui v49
  let c0_i32_32 : BitVec 32 := 0#32
  let v51 : BitVec 1 := Scalar.cmpi .ne v50 c0_i32_32
  v51

def k8_off6 (i : grid8.Coords) (k8_t1 : Fin k8_t1_loop.trips) : Fin 2 → Nat :=
  let c8_i32_45 : BitVec 32 := 8#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_21 : BitVec 32 := 0#32
  let c1_i32_23 : BitVec 32 := 1#32
  let arg12 : BitVec 32 := Scf.iv c0_i32_21 c1_i32_23 k8_t1
  let c2_i32_27 : BitVec 32 := 2#32
  let v41 : BitVec 32 := Scalar.muli arg12 c2_i32_27
  let c2_i32_40 : BitVec 32 := 2#32
  let v64 : BitVec 32 := Scalar.addi v41 c2_i32_40
  let c32_i32_41 : BitVec 32 := 32#32
  let v65 : BitVec 32 := Scalar.muli v64 c32_i32_41
  let v66 : BitVec 32 := Scalar.addi v1 v65
  let c3200_i32_42 : BitVec 32 := 3200#32
  let v67 : BitVec 32 := Scalar.muli v66 c3200_i32_42
  ![8, v67.toNat]
def k8_cond4 (k8_t1 : Fin k8_t1_loop.trips) : BitVec 1 :=
  let c0_i32_21 : BitVec 32 := 0#32
  let c1_i32_23 : BitVec 32 := 1#32
  let arg12 : BitVec 32 := Scf.iv c0_i32_21 c1_i32_23 k8_t1
  let c2_i32_33 : BitVec 32 := 2#32
  let v52 : BitVec 32 := Scalar.muli arg12 c2_i32_33
  let c1_i32_34 : BitVec 32 := 1#32
  let v53 : BitVec 32 := Scalar.addi v52 c1_i32_34
  let c2_i32_35 : BitVec 32 := 2#32
  let v54 : BitVec 1 := Scalar.cmpi .sge v53 c2_i32_35
  let v55 : BitVec 32 := Scalar.extui v54
  let c0_i32_36 : BitVec 32 := 0#32
  let v56 : BitVec 1 := Scalar.cmpi .ne v55 c0_i32_36
  v56

def k8_off7 (i : grid8.Coords) (k8_t1 : Fin k8_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_21 : BitVec 32 := 0#32
  let c1_i32_23 : BitVec 32 := 1#32
  let arg12 : BitVec 32 := Scf.iv c0_i32_21 c1_i32_23 k8_t1
  let c2_i32_33 : BitVec 32 := 2#32
  let v52 : BitVec 32 := Scalar.muli arg12 c2_i32_33
  let c1_i32_34 : BitVec 32 := 1#32
  let v53 : BitVec 32 := Scalar.addi v52 c1_i32_34
  let c2_i32_40 : BitVec 32 := 2#32
  let v64 : BitVec 32 := Scalar.subi v53 c2_i32_40
  let c32_i32_41 : BitVec 32 := 32#32
  let v65 : BitVec 32 := Scalar.muli v64 c32_i32_41
  let v66 : BitVec 32 := Scalar.addi v1 v65
  let c3200_i32_42 : BitVec 32 := 3200#32
  let v67 : BitVec 32 := Scalar.muli v66 c3200_i32_42
  ![v67.toNat]
def k8_cond5 (i : grid8.Coords) (k8_t1 : Fin k8_t1_loop.trips) : BitVec 1 :=
  let c0_i32_21 : BitVec 32 := 0#32
  let c1_i32_23 : BitVec 32 := 1#32
  let arg12 : BitVec 32 := Scf.iv c0_i32_21 c1_i32_23 k8_t1
  let c2_i32_33 : BitVec 32 := 2#32
  let v52 : BitVec 32 := Scalar.muli arg12 c2_i32_33
  let c1_i32_34 : BitVec 32 := 1#32
  let v53 : BitVec 32 := Scalar.addi v52 c1_i32_34
  let c500_i32 : BitVec 32 := 500#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v2 : BitVec 32 := Scalar.subi c500_i32 v1
  let c32_i32 : BitVec 32 := 32#32
  let v3 : BitVec 32 := Scalar.addi v2 c32_i32
  let c1_i32 : BitVec 32 := 1#32
  let v4 : BitVec 32 := Scalar.subi v3 c1_i32
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c32_i32_0 : BitVec 32 := 32#32
  let c0_i32_2 : BitVec 32 := 0#32
  let v11 : BitVec 1 := Scalar.cmpi .sgt c32_i32_0 c0_i32_2
  let v12 : BitVec 32 := Scalar.extui v11
  let c0_i32_3 : BitVec 32 := 0#32
  let v13 : BitVec 1 := Scalar.cmpi .slt c32_i32_0 c0_i32_3
  let v14 : BitVec 32 := Scalar.extui v13
  let v15 : BitVec 32 := Scalar.subi v12 v14
  let v16 : BitVec 1 := Scalar.cmpi .ne v10 v15
  let v17 : BitVec 32 := Scalar.remsi v4 c32_i32_0
  let c0_i32_4 : BitVec 32 := 0#32
  let v18 : BitVec 1 := Scalar.cmpi .ne v17 c0_i32_4
  let v19 : BitVec 1 := Scalar.andi v16 v18
  let v5 : BitVec 32 := Scalar.divsi v4 c32_i32_0
  let c1_i32_5 : BitVec 32 := 1#32
  let v20 : BitVec 32 := Scalar.subi v5 c1_i32_5
  let v21 : BitVec 32 := Scalar.select v19 v20 v5
  let v57 : BitVec 1 := Scalar.cmpi .slt v53 v21
  let v58 : BitVec 32 := Scalar.extui v57
  let c0_i32_37 : BitVec 32 := 0#32
  let v59 : BitVec 1 := Scalar.cmpi .ne v58 c0_i32_37
  v59

@[reducible] def k8_t3_loop : Scf.Loop 32 :=
  let c0_i32_49 : BitVec 32 := 0#32
  let c200_i32 : BitVec 32 := 200#32
  let v68 : BitVec 32 := Scalar.addi c0_i32_49 c200_i32
  let c1_i32_50 : BitVec 32 := 1#32
  ⟨c0_i32_49, v68, c1_i32_50⟩
def k8_off8 (k8_t3 : Fin k8_t3_loop.trips) : Fin 2 → Nat :=
  let c0_i32_56 : BitVec 32 := 0#32
  let v77 : Index := Scalar.indexCast c0_i32_56
  let c0_i32_49 : BitVec 32 := 0#32
  let c1_i32_50 : BitVec 32 := 1#32
  let arg13 : BitVec 32 := Scf.iv c0_i32_49 c1_i32_50 k8_t3
  let c16_i32 : BitVec 32 := 16#32
  let v76 : BitVec 32 := Scalar.muli arg13 c16_i32
  let v78 : Index := Scalar.indexCast v76
  ![0, v78.toNat]
def k8_off9 (k8_t3 : Fin k8_t3_loop.trips) : Fin 1 → Nat :=
  let c0_i32_58 : BitVec 32 := 0#32
  let c0_i32_49 : BitVec 32 := 0#32
  let c1_i32_50 : BitVec 32 := 1#32
  let arg13 : BitVec 32 := Scf.iv c0_i32_49 c1_i32_50 k8_t3
  let c16_i32_57 : BitVec 32 := 16#32
  let v80 : BitVec 32 := Scalar.muli arg13 c16_i32_57
  let v81 : BitVec 32 := Scalar.addi c0_i32_58 v80
  let v82 : Index := Scalar.indexCast v81
  ![v82.toNat]
def k8_off10 (i : grid8.Coords) (k8_t1 : Fin k8_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_21 : BitVec 32 := 0#32
  let c1_i32_23 : BitVec 32 := 1#32
  let arg12 : BitVec 32 := Scf.iv c0_i32_21 c1_i32_23 k8_t1
  let c2_i32_33 : BitVec 32 := 2#32
  let v52 : BitVec 32 := Scalar.muli arg12 c2_i32_33
  let c1_i32_34 : BitVec 32 := 1#32
  let v53 : BitVec 32 := Scalar.addi v52 c1_i32_34
  let c32_i32_52 : BitVec 32 := 32#32
  let v69 : BitVec 32 := Scalar.muli v53 c32_i32_52
  let v70 : BitVec 32 := Scalar.addi v1 v69
  let c3200_i32_53 : BitVec 32 := 3200#32
  let v71 : BitVec 32 := Scalar.muli v70 c3200_i32_53
  ![v71.toNat]
def k8_cond6 (i : grid8.Coords) (k8_t1 : Fin k8_t1_loop.trips) : BitVec 1 :=
  let c0_i32_21 : BitVec 32 := 0#32
  let c1_i32_23 : BitVec 32 := 1#32
  let arg12 : BitVec 32 := Scf.iv c0_i32_21 c1_i32_23 k8_t1
  let c2_i32_33 : BitVec 32 := 2#32
  let v52 : BitVec 32 := Scalar.muli arg12 c2_i32_33
  let c1_i32_34 : BitVec 32 := 1#32
  let v53 : BitVec 32 := Scalar.addi v52 c1_i32_34
  let c2_i32_38 : BitVec 32 := 2#32
  let v60 : BitVec 32 := Scalar.addi v53 c2_i32_38
  let c500_i32 : BitVec 32 := 500#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v2 : BitVec 32 := Scalar.subi c500_i32 v1
  let c32_i32 : BitVec 32 := 32#32
  let v3 : BitVec 32 := Scalar.addi v2 c32_i32
  let c1_i32 : BitVec 32 := 1#32
  let v4 : BitVec 32 := Scalar.subi v3 c1_i32
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c32_i32_0 : BitVec 32 := 32#32
  let c0_i32_2 : BitVec 32 := 0#32
  let v11 : BitVec 1 := Scalar.cmpi .sgt c32_i32_0 c0_i32_2
  let v12 : BitVec 32 := Scalar.extui v11
  let c0_i32_3 : BitVec 32 := 0#32
  let v13 : BitVec 1 := Scalar.cmpi .slt c32_i32_0 c0_i32_3
  let v14 : BitVec 32 := Scalar.extui v13
  let v15 : BitVec 32 := Scalar.subi v12 v14
  let v16 : BitVec 1 := Scalar.cmpi .ne v10 v15
  let v17 : BitVec 32 := Scalar.remsi v4 c32_i32_0
  let c0_i32_4 : BitVec 32 := 0#32
  let v18 : BitVec 1 := Scalar.cmpi .ne v17 c0_i32_4
  let v19 : BitVec 1 := Scalar.andi v16 v18
  let v5 : BitVec 32 := Scalar.divsi v4 c32_i32_0
  let c1_i32_5 : BitVec 32 := 1#32
  let v20 : BitVec 32 := Scalar.subi v5 c1_i32_5
  let v21 : BitVec 32 := Scalar.select v19 v20 v5
  let v61 : BitVec 1 := Scalar.cmpi .slt v60 v21
  let v62 : BitVec 32 := Scalar.extui v61
  let c0_i32_39 : BitVec 32 := 0#32
  let v63 : BitVec 1 := Scalar.cmpi .ne v62 c0_i32_39
  v63

def k8_off11 (i : grid8.Coords) (k8_t1 : Fin k8_t1_loop.trips) : Fin 2 → Nat :=
  let c8_i32_45 : BitVec 32 := 8#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_21 : BitVec 32 := 0#32
  let c1_i32_23 : BitVec 32 := 1#32
  let arg12 : BitVec 32 := Scf.iv c0_i32_21 c1_i32_23 k8_t1
  let c2_i32_33 : BitVec 32 := 2#32
  let v52 : BitVec 32 := Scalar.muli arg12 c2_i32_33
  let c1_i32_34 : BitVec 32 := 1#32
  let v53 : BitVec 32 := Scalar.addi v52 c1_i32_34
  let c2_i32_40 : BitVec 32 := 2#32
  let v64 : BitVec 32 := Scalar.addi v53 c2_i32_40
  let c32_i32_41 : BitVec 32 := 32#32
  let v65 : BitVec 32 := Scalar.muli v64 c32_i32_41
  let v66 : BitVec 32 := Scalar.addi v1 v65
  let c3200_i32_42 : BitVec 32 := 3200#32
  let v67 : BitVec 32 := Scalar.muli v66 c3200_i32_42
  ![8, v67.toNat]
def k8_cond7 (i : grid8.Coords) : BitVec 1 :=
  let c500_i32 : BitVec 32 := 500#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v2 : BitVec 32 := Scalar.subi c500_i32 v1
  let c32_i32 : BitVec 32 := 32#32
  let v3 : BitVec 32 := Scalar.addi v2 c32_i32
  let c1_i32 : BitVec 32 := 1#32
  let v4 : BitVec 32 := Scalar.subi v3 c1_i32
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c32_i32_0 : BitVec 32 := 32#32
  let c0_i32_2 : BitVec 32 := 0#32
  let v11 : BitVec 1 := Scalar.cmpi .sgt c32_i32_0 c0_i32_2
  let v12 : BitVec 32 := Scalar.extui v11
  let c0_i32_3 : BitVec 32 := 0#32
  let v13 : BitVec 1 := Scalar.cmpi .slt c32_i32_0 c0_i32_3
  let v14 : BitVec 32 := Scalar.extui v13
  let v15 : BitVec 32 := Scalar.subi v12 v14
  let v16 : BitVec 1 := Scalar.cmpi .ne v10 v15
  let v17 : BitVec 32 := Scalar.remsi v4 c32_i32_0
  let c0_i32_4 : BitVec 32 := 0#32
  let v18 : BitVec 1 := Scalar.cmpi .ne v17 c0_i32_4
  let v19 : BitVec 1 := Scalar.andi v16 v18
  let v5 : BitVec 32 := Scalar.divsi v4 c32_i32_0
  let c1_i32_5 : BitVec 32 := 1#32
  let v20 : BitVec 32 := Scalar.subi v5 c1_i32_5
  let v21 : BitVec 32 := Scalar.select v19 v20 v5
  let c14_i32 : BitVec 32 := 14#32
  let v35 : BitVec 1 := Scalar.cmpi .sgt v21 c14_i32
  let v36 : BitVec 32 := Scalar.extui v35
  let c0_i32_25 : BitVec 32 := 0#32
  let v37 : BitVec 1 := Scalar.cmpi .ne v36 c0_i32_25
  v37

def k8_off12 (i : grid8.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c448_i32 : BitVec 32 := 448#32
  let v41 : BitVec 32 := Scalar.addi v1 c448_i32
  let c3200_i32_27 : BitVec 32 := 3200#32
  let v42 : BitVec 32 := Scalar.muli v41 c3200_i32_27
  ![v42.toNat]
def k8_cond8 (i : grid8.Coords) : BitVec 1 :=
  let c500_i32 : BitVec 32 := 500#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v2 : BitVec 32 := Scalar.subi c500_i32 v1
  let c32_i32 : BitVec 32 := 32#32
  let v3 : BitVec 32 := Scalar.addi v2 c32_i32
  let c1_i32 : BitVec 32 := 1#32
  let v4 : BitVec 32 := Scalar.subi v3 c1_i32
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c32_i32_0 : BitVec 32 := 32#32
  let c0_i32_2 : BitVec 32 := 0#32
  let v11 : BitVec 1 := Scalar.cmpi .sgt c32_i32_0 c0_i32_2
  let v12 : BitVec 32 := Scalar.extui v11
  let c0_i32_3 : BitVec 32 := 0#32
  let v13 : BitVec 1 := Scalar.cmpi .slt c32_i32_0 c0_i32_3
  let v14 : BitVec 32 := Scalar.extui v13
  let v15 : BitVec 32 := Scalar.subi v12 v14
  let v16 : BitVec 1 := Scalar.cmpi .ne v10 v15
  let v17 : BitVec 32 := Scalar.remsi v4 c32_i32_0
  let c0_i32_4 : BitVec 32 := 0#32
  let v18 : BitVec 1 := Scalar.cmpi .ne v17 c0_i32_4
  let v19 : BitVec 1 := Scalar.andi v16 v18
  let v5 : BitVec 32 := Scalar.divsi v4 c32_i32_0
  let c1_i32_5 : BitVec 32 := 1#32
  let v20 : BitVec 32 := Scalar.subi v5 c1_i32_5
  let v21 : BitVec 32 := Scalar.select v19 v20 v5
  let c15_i32 : BitVec 32 := 15#32
  let v38 : BitVec 1 := Scalar.cmpi .sgt v21 c15_i32
  let v39 : BitVec 32 := Scalar.extui v38
  let c0_i32_26 : BitVec 32 := 0#32
  let v40 : BitVec 1 := Scalar.cmpi .ne v39 c0_i32_26
  v40

def k8_off13 (i : grid8.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c480_i32 : BitVec 32 := 480#32
  let v41 : BitVec 32 := Scalar.addi v1 c480_i32
  let c3200_i32_27 : BitVec 32 := 3200#32
  let v42 : BitVec 32 := Scalar.muli v41 c3200_i32_27
  ![v42.toNat]
abbrev grid9 : Pipeline.Grid := ⟨2, ![2, 16], ![false, false]⟩

def k9_off1 (i : grid9.Coords) (c0_i32_6 : BitVec 32) : Fin 2 → Nat :=
  let c9_i32 : BitVec 32 := 9#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v22 : BitVec 32 := Scalar.addi v1 c0_i32_6
  let c3200_i32 : BitVec 32 := 3200#32
  let v23 : BitVec 32 := Scalar.muli v22 c3200_i32
  ![9, v23.toNat]
@[reducible] def k9_t1_loop : Scf.Loop 32 :=
  let c0_i32_21 : BitVec 32 := 0#32
  let c8_i32 : BitVec 32 := 8#32
  let v34 : BitVec 32 := Scalar.addi c0_i32_21 c8_i32
  let c1_i32_22 : BitVec 32 := 1#32
  ⟨c0_i32_21, v34, c1_i32_22⟩
def k9_cond1 (k9_t1 : Fin k9_t1_loop.trips) : BitVec 1 :=
  let c0_i32_21 : BitVec 32 := 0#32
  let c1_i32_22 : BitVec 32 := 1#32
  let arg12 : BitVec 32 := Scf.iv c0_i32_21 c1_i32_22 k9_t1
  let c2_i32_26 : BitVec 32 := 2#32
  let v41 : BitVec 32 := Scalar.muli arg12 c2_i32_26
  let c2_i32_27 : BitVec 32 := 2#32
  let v42 : BitVec 1 := Scalar.cmpi .sge v41 c2_i32_27
  let v43 : BitVec 32 := Scalar.extui v42
  let c0_i32_28 : BitVec 32 := 0#32
  let v44 : BitVec 1 := Scalar.cmpi .ne v43 c0_i32_28
  v44

def k9_off2 (i : grid9.Coords) (k9_t1 : Fin k9_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_21 : BitVec 32 := 0#32
  let c1_i32_22 : BitVec 32 := 1#32
  let arg12 : BitVec 32 := Scf.iv c0_i32_21 c1_i32_22 k9_t1
  let c2_i32_26 : BitVec 32 := 2#32
  let v41 : BitVec 32 := Scalar.muli arg12 c2_i32_26
  let c2_i32_39 : BitVec 32 := 2#32
  let v64 : BitVec 32 := Scalar.subi v41 c2_i32_39
  let c32_i32_40 : BitVec 32 := 32#32
  let v65 : BitVec 32 := Scalar.muli v64 c32_i32_40
  let v66 : BitVec 32 := Scalar.addi v1 v65
  let c3200_i32_41 : BitVec 32 := 3200#32
  let v67 : BitVec 32 := Scalar.muli v66 c3200_i32_41
  ![v67.toNat]
def k9_cond2 (i : grid9.Coords) (k9_t1 : Fin k9_t1_loop.trips) : BitVec 1 :=
  let c0_i32_21 : BitVec 32 := 0#32
  let c1_i32_22 : BitVec 32 := 1#32
  let arg12 : BitVec 32 := Scf.iv c0_i32_21 c1_i32_22 k9_t1
  let c2_i32_26 : BitVec 32 := 2#32
  let v41 : BitVec 32 := Scalar.muli arg12 c2_i32_26
  let c500_i32 : BitVec 32 := 500#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v2 : BitVec 32 := Scalar.subi c500_i32 v1
  let c32_i32 : BitVec 32 := 32#32
  let v3 : BitVec 32 := Scalar.addi v2 c32_i32
  let c1_i32 : BitVec 32 := 1#32
  let v4 : BitVec 32 := Scalar.subi v3 c1_i32
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c32_i32_0 : BitVec 32 := 32#32
  let c0_i32_2 : BitVec 32 := 0#32
  let v11 : BitVec 1 := Scalar.cmpi .sgt c32_i32_0 c0_i32_2
  let v12 : BitVec 32 := Scalar.extui v11
  let c0_i32_3 : BitVec 32 := 0#32
  let v13 : BitVec 1 := Scalar.cmpi .slt c32_i32_0 c0_i32_3
  let v14 : BitVec 32 := Scalar.extui v13
  let v15 : BitVec 32 := Scalar.subi v12 v14
  let v16 : BitVec 1 := Scalar.cmpi .ne v10 v15
  let v17 : BitVec 32 := Scalar.remsi v4 c32_i32_0
  let c0_i32_4 : BitVec 32 := 0#32
  let v18 : BitVec 1 := Scalar.cmpi .ne v17 c0_i32_4
  let v19 : BitVec 1 := Scalar.andi v16 v18
  let v5 : BitVec 32 := Scalar.divsi v4 c32_i32_0
  let c1_i32_5 : BitVec 32 := 1#32
  let v20 : BitVec 32 := Scalar.subi v5 c1_i32_5
  let v21 : BitVec 32 := Scalar.select v19 v20 v5
  let v45 : BitVec 1 := Scalar.cmpi .slt v41 v21
  let v46 : BitVec 32 := Scalar.extui v45
  let c0_i32_29 : BitVec 32 := 0#32
  let v47 : BitVec 1 := Scalar.cmpi .ne v46 c0_i32_29
  v47

@[reducible] def k9_t2_loop : Scf.Loop 32 :=
  let c0_i32_48 : BitVec 32 := 0#32
  let c200_i32 : BitVec 32 := 200#32
  let v68 : BitVec 32 := Scalar.addi c0_i32_48 c200_i32
  let c1_i32_49 : BitVec 32 := 1#32
  ⟨c0_i32_48, v68, c1_i32_49⟩
def k9_off3 (k9_t2 : Fin k9_t2_loop.trips) : Fin 2 → Nat :=
  let c0_i32_55 : BitVec 32 := 0#32
  let v77 : Index := Scalar.indexCast c0_i32_55
  let c0_i32_48 : BitVec 32 := 0#32
  let c1_i32_49 : BitVec 32 := 1#32
  let arg13 : BitVec 32 := Scf.iv c0_i32_48 c1_i32_49 k9_t2
  let c16_i32 : BitVec 32 := 16#32
  let v76 : BitVec 32 := Scalar.muli arg13 c16_i32
  let v78 : Index := Scalar.indexCast v76
  ![0, v78.toNat]
def k9_off4 (k9_t2 : Fin k9_t2_loop.trips) : Fin 1 → Nat :=
  let c0_i32_57 : BitVec 32 := 0#32
  let c0_i32_48 : BitVec 32 := 0#32
  let c1_i32_49 : BitVec 32 := 1#32
  let arg13 : BitVec 32 := Scf.iv c0_i32_48 c1_i32_49 k9_t2
  let c16_i32_56 : BitVec 32 := 16#32
  let v80 : BitVec 32 := Scalar.muli arg13 c16_i32_56
  let v81 : BitVec 32 := Scalar.addi c0_i32_57 v80
  let v82 : Index := Scalar.indexCast v81
  ![v82.toNat]
def k9_off5 (i : grid9.Coords) (k9_t1 : Fin k9_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_21 : BitVec 32 := 0#32
  let c1_i32_22 : BitVec 32 := 1#32
  let arg12 : BitVec 32 := Scf.iv c0_i32_21 c1_i32_22 k9_t1
  let c2_i32_26 : BitVec 32 := 2#32
  let v41 : BitVec 32 := Scalar.muli arg12 c2_i32_26
  let c32_i32_51 : BitVec 32 := 32#32
  let v69 : BitVec 32 := Scalar.muli v41 c32_i32_51
  let v70 : BitVec 32 := Scalar.addi v1 v69
  let c3200_i32_52 : BitVec 32 := 3200#32
  let v71 : BitVec 32 := Scalar.muli v70 c3200_i32_52
  ![v71.toNat]
def k9_cond3 (i : grid9.Coords) (k9_t1 : Fin k9_t1_loop.trips) : BitVec 1 :=
  let c0_i32_21 : BitVec 32 := 0#32
  let c1_i32_22 : BitVec 32 := 1#32
  let arg12 : BitVec 32 := Scf.iv c0_i32_21 c1_i32_22 k9_t1
  let c2_i32_26 : BitVec 32 := 2#32
  let v41 : BitVec 32 := Scalar.muli arg12 c2_i32_26
  let c2_i32_30 : BitVec 32 := 2#32
  let v48 : BitVec 32 := Scalar.addi v41 c2_i32_30
  let c500_i32 : BitVec 32 := 500#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v2 : BitVec 32 := Scalar.subi c500_i32 v1
  let c32_i32 : BitVec 32 := 32#32
  let v3 : BitVec 32 := Scalar.addi v2 c32_i32
  let c1_i32 : BitVec 32 := 1#32
  let v4 : BitVec 32 := Scalar.subi v3 c1_i32
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c32_i32_0 : BitVec 32 := 32#32
  let c0_i32_2 : BitVec 32 := 0#32
  let v11 : BitVec 1 := Scalar.cmpi .sgt c32_i32_0 c0_i32_2
  let v12 : BitVec 32 := Scalar.extui v11
  let c0_i32_3 : BitVec 32 := 0#32
  let v13 : BitVec 1 := Scalar.cmpi .slt c32_i32_0 c0_i32_3
  let v14 : BitVec 32 := Scalar.extui v13
  let v15 : BitVec 32 := Scalar.subi v12 v14
  let v16 : BitVec 1 := Scalar.cmpi .ne v10 v15
  let v17 : BitVec 32 := Scalar.remsi v4 c32_i32_0
  let c0_i32_4 : BitVec 32 := 0#32
  let v18 : BitVec 1 := Scalar.cmpi .ne v17 c0_i32_4
  let v19 : BitVec 1 := Scalar.andi v16 v18
  let v5 : BitVec 32 := Scalar.divsi v4 c32_i32_0
  let c1_i32_5 : BitVec 32 := 1#32
  let v20 : BitVec 32 := Scalar.subi v5 c1_i32_5
  let v21 : BitVec 32 := Scalar.select v19 v20 v5
  let v49 : BitVec 1 := Scalar.cmpi .slt v48 v21
  let v50 : BitVec 32 := Scalar.extui v49
  let c0_i32_31 : BitVec 32 := 0#32
  let v51 : BitVec 1 := Scalar.cmpi .ne v50 c0_i32_31
  v51

def k9_off6 (i : grid9.Coords) (k9_t1 : Fin k9_t1_loop.trips) : Fin 2 → Nat :=
  let c9_i32_44 : BitVec 32 := 9#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_21 : BitVec 32 := 0#32
  let c1_i32_22 : BitVec 32 := 1#32
  let arg12 : BitVec 32 := Scf.iv c0_i32_21 c1_i32_22 k9_t1
  let c2_i32_26 : BitVec 32 := 2#32
  let v41 : BitVec 32 := Scalar.muli arg12 c2_i32_26
  let c2_i32_39 : BitVec 32 := 2#32
  let v64 : BitVec 32 := Scalar.addi v41 c2_i32_39
  let c32_i32_40 : BitVec 32 := 32#32
  let v65 : BitVec 32 := Scalar.muli v64 c32_i32_40
  let v66 : BitVec 32 := Scalar.addi v1 v65
  let c3200_i32_41 : BitVec 32 := 3200#32
  let v67 : BitVec 32 := Scalar.muli v66 c3200_i32_41
  ![9, v67.toNat]
def k9_cond4 (k9_t1 : Fin k9_t1_loop.trips) : BitVec 1 :=
  let c0_i32_21 : BitVec 32 := 0#32
  let c1_i32_22 : BitVec 32 := 1#32
  let arg12 : BitVec 32 := Scf.iv c0_i32_21 c1_i32_22 k9_t1
  let c2_i32_32 : BitVec 32 := 2#32
  let v52 : BitVec 32 := Scalar.muli arg12 c2_i32_32
  let c1_i32_33 : BitVec 32 := 1#32
  let v53 : BitVec 32 := Scalar.addi v52 c1_i32_33
  let c2_i32_34 : BitVec 32 := 2#32
  let v54 : BitVec 1 := Scalar.cmpi .sge v53 c2_i32_34
  let v55 : BitVec 32 := Scalar.extui v54
  let c0_i32_35 : BitVec 32 := 0#32
  let v56 : BitVec 1 := Scalar.cmpi .ne v55 c0_i32_35
  v56

def k9_off7 (i : grid9.Coords) (k9_t1 : Fin k9_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_21 : BitVec 32 := 0#32
  let c1_i32_22 : BitVec 32 := 1#32
  let arg12 : BitVec 32 := Scf.iv c0_i32_21 c1_i32_22 k9_t1
  let c2_i32_32 : BitVec 32 := 2#32
  let v52 : BitVec 32 := Scalar.muli arg12 c2_i32_32
  let c1_i32_33 : BitVec 32 := 1#32
  let v53 : BitVec 32 := Scalar.addi v52 c1_i32_33
  let c2_i32_39 : BitVec 32 := 2#32
  let v64 : BitVec 32 := Scalar.subi v53 c2_i32_39
  let c32_i32_40 : BitVec 32 := 32#32
  let v65 : BitVec 32 := Scalar.muli v64 c32_i32_40
  let v66 : BitVec 32 := Scalar.addi v1 v65
  let c3200_i32_41 : BitVec 32 := 3200#32
  let v67 : BitVec 32 := Scalar.muli v66 c3200_i32_41
  ![v67.toNat]
def k9_cond5 (i : grid9.Coords) (k9_t1 : Fin k9_t1_loop.trips) : BitVec 1 :=
  let c0_i32_21 : BitVec 32 := 0#32
  let c1_i32_22 : BitVec 32 := 1#32
  let arg12 : BitVec 32 := Scf.iv c0_i32_21 c1_i32_22 k9_t1
  let c2_i32_32 : BitVec 32 := 2#32
  let v52 : BitVec 32 := Scalar.muli arg12 c2_i32_32
  let c1_i32_33 : BitVec 32 := 1#32
  let v53 : BitVec 32 := Scalar.addi v52 c1_i32_33
  let c500_i32 : BitVec 32 := 500#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v2 : BitVec 32 := Scalar.subi c500_i32 v1
  let c32_i32 : BitVec 32 := 32#32
  let v3 : BitVec 32 := Scalar.addi v2 c32_i32
  let c1_i32 : BitVec 32 := 1#32
  let v4 : BitVec 32 := Scalar.subi v3 c1_i32
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c32_i32_0 : BitVec 32 := 32#32
  let c0_i32_2 : BitVec 32 := 0#32
  let v11 : BitVec 1 := Scalar.cmpi .sgt c32_i32_0 c0_i32_2
  let v12 : BitVec 32 := Scalar.extui v11
  let c0_i32_3 : BitVec 32 := 0#32
  let v13 : BitVec 1 := Scalar.cmpi .slt c32_i32_0 c0_i32_3
  let v14 : BitVec 32 := Scalar.extui v13
  let v15 : BitVec 32 := Scalar.subi v12 v14
  let v16 : BitVec 1 := Scalar.cmpi .ne v10 v15
  let v17 : BitVec 32 := Scalar.remsi v4 c32_i32_0
  let c0_i32_4 : BitVec 32 := 0#32
  let v18 : BitVec 1 := Scalar.cmpi .ne v17 c0_i32_4
  let v19 : BitVec 1 := Scalar.andi v16 v18
  let v5 : BitVec 32 := Scalar.divsi v4 c32_i32_0
  let c1_i32_5 : BitVec 32 := 1#32
  let v20 : BitVec 32 := Scalar.subi v5 c1_i32_5
  let v21 : BitVec 32 := Scalar.select v19 v20 v5
  let v57 : BitVec 1 := Scalar.cmpi .slt v53 v21
  let v58 : BitVec 32 := Scalar.extui v57
  let c0_i32_36 : BitVec 32 := 0#32
  let v59 : BitVec 1 := Scalar.cmpi .ne v58 c0_i32_36
  v59

@[reducible] def k9_t3_loop : Scf.Loop 32 :=
  let c0_i32_48 : BitVec 32 := 0#32
  let c200_i32 : BitVec 32 := 200#32
  let v68 : BitVec 32 := Scalar.addi c0_i32_48 c200_i32
  let c1_i32_49 : BitVec 32 := 1#32
  ⟨c0_i32_48, v68, c1_i32_49⟩
def k9_off8 (k9_t3 : Fin k9_t3_loop.trips) : Fin 2 → Nat :=
  let c0_i32_55 : BitVec 32 := 0#32
  let v77 : Index := Scalar.indexCast c0_i32_55
  let c0_i32_48 : BitVec 32 := 0#32
  let c1_i32_49 : BitVec 32 := 1#32
  let arg13 : BitVec 32 := Scf.iv c0_i32_48 c1_i32_49 k9_t3
  let c16_i32 : BitVec 32 := 16#32
  let v76 : BitVec 32 := Scalar.muli arg13 c16_i32
  let v78 : Index := Scalar.indexCast v76
  ![0, v78.toNat]
def k9_off9 (k9_t3 : Fin k9_t3_loop.trips) : Fin 1 → Nat :=
  let c0_i32_57 : BitVec 32 := 0#32
  let c0_i32_48 : BitVec 32 := 0#32
  let c1_i32_49 : BitVec 32 := 1#32
  let arg13 : BitVec 32 := Scf.iv c0_i32_48 c1_i32_49 k9_t3
  let c16_i32_56 : BitVec 32 := 16#32
  let v80 : BitVec 32 := Scalar.muli arg13 c16_i32_56
  let v81 : BitVec 32 := Scalar.addi c0_i32_57 v80
  let v82 : Index := Scalar.indexCast v81
  ![v82.toNat]
def k9_off10 (i : grid9.Coords) (k9_t1 : Fin k9_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_21 : BitVec 32 := 0#32
  let c1_i32_22 : BitVec 32 := 1#32
  let arg12 : BitVec 32 := Scf.iv c0_i32_21 c1_i32_22 k9_t1
  let c2_i32_32 : BitVec 32 := 2#32
  let v52 : BitVec 32 := Scalar.muli arg12 c2_i32_32
  let c1_i32_33 : BitVec 32 := 1#32
  let v53 : BitVec 32 := Scalar.addi v52 c1_i32_33
  let c32_i32_51 : BitVec 32 := 32#32
  let v69 : BitVec 32 := Scalar.muli v53 c32_i32_51
  let v70 : BitVec 32 := Scalar.addi v1 v69
  let c3200_i32_52 : BitVec 32 := 3200#32
  let v71 : BitVec 32 := Scalar.muli v70 c3200_i32_52
  ![v71.toNat]
def k9_cond6 (i : grid9.Coords) (k9_t1 : Fin k9_t1_loop.trips) : BitVec 1 :=
  let c0_i32_21 : BitVec 32 := 0#32
  let c1_i32_22 : BitVec 32 := 1#32
  let arg12 : BitVec 32 := Scf.iv c0_i32_21 c1_i32_22 k9_t1
  let c2_i32_32 : BitVec 32 := 2#32
  let v52 : BitVec 32 := Scalar.muli arg12 c2_i32_32
  let c1_i32_33 : BitVec 32 := 1#32
  let v53 : BitVec 32 := Scalar.addi v52 c1_i32_33
  let c2_i32_37 : BitVec 32 := 2#32
  let v60 : BitVec 32 := Scalar.addi v53 c2_i32_37
  let c500_i32 : BitVec 32 := 500#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v2 : BitVec 32 := Scalar.subi c500_i32 v1
  let c32_i32 : BitVec 32 := 32#32
  let v3 : BitVec 32 := Scalar.addi v2 c32_i32
  let c1_i32 : BitVec 32 := 1#32
  let v4 : BitVec 32 := Scalar.subi v3 c1_i32
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c32_i32_0 : BitVec 32 := 32#32
  let c0_i32_2 : BitVec 32 := 0#32
  let v11 : BitVec 1 := Scalar.cmpi .sgt c32_i32_0 c0_i32_2
  let v12 : BitVec 32 := Scalar.extui v11
  let c0_i32_3 : BitVec 32 := 0#32
  let v13 : BitVec 1 := Scalar.cmpi .slt c32_i32_0 c0_i32_3
  let v14 : BitVec 32 := Scalar.extui v13
  let v15 : BitVec 32 := Scalar.subi v12 v14
  let v16 : BitVec 1 := Scalar.cmpi .ne v10 v15
  let v17 : BitVec 32 := Scalar.remsi v4 c32_i32_0
  let c0_i32_4 : BitVec 32 := 0#32
  let v18 : BitVec 1 := Scalar.cmpi .ne v17 c0_i32_4
  let v19 : BitVec 1 := Scalar.andi v16 v18
  let v5 : BitVec 32 := Scalar.divsi v4 c32_i32_0
  let c1_i32_5 : BitVec 32 := 1#32
  let v20 : BitVec 32 := Scalar.subi v5 c1_i32_5
  let v21 : BitVec 32 := Scalar.select v19 v20 v5
  let v61 : BitVec 1 := Scalar.cmpi .slt v60 v21
  let v62 : BitVec 32 := Scalar.extui v61
  let c0_i32_38 : BitVec 32 := 0#32
  let v63 : BitVec 1 := Scalar.cmpi .ne v62 c0_i32_38
  v63

def k9_off11 (i : grid9.Coords) (k9_t1 : Fin k9_t1_loop.trips) : Fin 2 → Nat :=
  let c9_i32_44 : BitVec 32 := 9#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_21 : BitVec 32 := 0#32
  let c1_i32_22 : BitVec 32 := 1#32
  let arg12 : BitVec 32 := Scf.iv c0_i32_21 c1_i32_22 k9_t1
  let c2_i32_32 : BitVec 32 := 2#32
  let v52 : BitVec 32 := Scalar.muli arg12 c2_i32_32
  let c1_i32_33 : BitVec 32 := 1#32
  let v53 : BitVec 32 := Scalar.addi v52 c1_i32_33
  let c2_i32_39 : BitVec 32 := 2#32
  let v64 : BitVec 32 := Scalar.addi v53 c2_i32_39
  let c32_i32_40 : BitVec 32 := 32#32
  let v65 : BitVec 32 := Scalar.muli v64 c32_i32_40
  let v66 : BitVec 32 := Scalar.addi v1 v65
  let c3200_i32_41 : BitVec 32 := 3200#32
  let v67 : BitVec 32 := Scalar.muli v66 c3200_i32_41
  ![9, v67.toNat]
def k9_cond7 (i : grid9.Coords) : BitVec 1 :=
  let c500_i32 : BitVec 32 := 500#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v2 : BitVec 32 := Scalar.subi c500_i32 v1
  let c32_i32 : BitVec 32 := 32#32
  let v3 : BitVec 32 := Scalar.addi v2 c32_i32
  let c1_i32 : BitVec 32 := 1#32
  let v4 : BitVec 32 := Scalar.subi v3 c1_i32
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c32_i32_0 : BitVec 32 := 32#32
  let c0_i32_2 : BitVec 32 := 0#32
  let v11 : BitVec 1 := Scalar.cmpi .sgt c32_i32_0 c0_i32_2
  let v12 : BitVec 32 := Scalar.extui v11
  let c0_i32_3 : BitVec 32 := 0#32
  let v13 : BitVec 1 := Scalar.cmpi .slt c32_i32_0 c0_i32_3
  let v14 : BitVec 32 := Scalar.extui v13
  let v15 : BitVec 32 := Scalar.subi v12 v14
  let v16 : BitVec 1 := Scalar.cmpi .ne v10 v15
  let v17 : BitVec 32 := Scalar.remsi v4 c32_i32_0
  let c0_i32_4 : BitVec 32 := 0#32
  let v18 : BitVec 1 := Scalar.cmpi .ne v17 c0_i32_4
  let v19 : BitVec 1 := Scalar.andi v16 v18
  let v5 : BitVec 32 := Scalar.divsi v4 c32_i32_0
  let c1_i32_5 : BitVec 32 := 1#32
  let v20 : BitVec 32 := Scalar.subi v5 c1_i32_5
  let v21 : BitVec 32 := Scalar.select v19 v20 v5
  let c14_i32 : BitVec 32 := 14#32
  let v35 : BitVec 1 := Scalar.cmpi .sgt v21 c14_i32
  let v36 : BitVec 32 := Scalar.extui v35
  let c0_i32_24 : BitVec 32 := 0#32
  let v37 : BitVec 1 := Scalar.cmpi .ne v36 c0_i32_24
  v37

def k9_off12 (i : grid9.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c448_i32 : BitVec 32 := 448#32
  let v41 : BitVec 32 := Scalar.addi v1 c448_i32
  let c3200_i32_26 : BitVec 32 := 3200#32
  let v42 : BitVec 32 := Scalar.muli v41 c3200_i32_26
  ![v42.toNat]
def k9_cond8 (i : grid9.Coords) : BitVec 1 :=
  let c500_i32 : BitVec 32 := 500#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v2 : BitVec 32 := Scalar.subi c500_i32 v1
  let c32_i32 : BitVec 32 := 32#32
  let v3 : BitVec 32 := Scalar.addi v2 c32_i32
  let c1_i32 : BitVec 32 := 1#32
  let v4 : BitVec 32 := Scalar.subi v3 c1_i32
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c32_i32_0 : BitVec 32 := 32#32
  let c0_i32_2 : BitVec 32 := 0#32
  let v11 : BitVec 1 := Scalar.cmpi .sgt c32_i32_0 c0_i32_2
  let v12 : BitVec 32 := Scalar.extui v11
  let c0_i32_3 : BitVec 32 := 0#32
  let v13 : BitVec 1 := Scalar.cmpi .slt c32_i32_0 c0_i32_3
  let v14 : BitVec 32 := Scalar.extui v13
  let v15 : BitVec 32 := Scalar.subi v12 v14
  let v16 : BitVec 1 := Scalar.cmpi .ne v10 v15
  let v17 : BitVec 32 := Scalar.remsi v4 c32_i32_0
  let c0_i32_4 : BitVec 32 := 0#32
  let v18 : BitVec 1 := Scalar.cmpi .ne v17 c0_i32_4
  let v19 : BitVec 1 := Scalar.andi v16 v18
  let v5 : BitVec 32 := Scalar.divsi v4 c32_i32_0
  let c1_i32_5 : BitVec 32 := 1#32
  let v20 : BitVec 32 := Scalar.subi v5 c1_i32_5
  let v21 : BitVec 32 := Scalar.select v19 v20 v5
  let c15_i32 : BitVec 32 := 15#32
  let v38 : BitVec 1 := Scalar.cmpi .sgt v21 c15_i32
  let v39 : BitVec 32 := Scalar.extui v38
  let c0_i32_25 : BitVec 32 := 0#32
  let v40 : BitVec 1 := Scalar.cmpi .ne v39 c0_i32_25
  v40

def k9_off13 (i : grid9.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c480_i32 : BitVec 32 := 480#32
  let v41 : BitVec 32 := Scalar.addi v1 c480_i32
  let c3200_i32_26 : BitVec 32 := 3200#32
  let v42 : BitVec 32 := Scalar.muli v41 c3200_i32_26
  ![v42.toNat]
abbrev grid10 : Pipeline.Grid := ⟨2, ![2, 16], ![false, false]⟩

def k10_off1 (i : grid10.Coords) (c0_i32_6 : BitVec 32) : Fin 2 → Nat :=
  let c10_i32 : BitVec 32 := 10#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v22 : BitVec 32 := Scalar.addi v1 c0_i32_6
  let c3200_i32 : BitVec 32 := 3200#32
  let v23 : BitVec 32 := Scalar.muli v22 c3200_i32
  ![10, v23.toNat]
@[reducible] def k10_t1_loop : Scf.Loop 32 :=
  let c0_i32_21 : BitVec 32 := 0#32
  let c8_i32 : BitVec 32 := 8#32
  let v34 : BitVec 32 := Scalar.addi c0_i32_21 c8_i32
  let c1_i32_22 : BitVec 32 := 1#32
  ⟨c0_i32_21, v34, c1_i32_22⟩
def k10_cond1 (k10_t1 : Fin k10_t1_loop.trips) : BitVec 1 :=
  let c0_i32_21 : BitVec 32 := 0#32
  let c1_i32_22 : BitVec 32 := 1#32
  let arg12 : BitVec 32 := Scf.iv c0_i32_21 c1_i32_22 k10_t1
  let c2_i32_26 : BitVec 32 := 2#32
  let v41 : BitVec 32 := Scalar.muli arg12 c2_i32_26
  let c2_i32_27 : BitVec 32 := 2#32
  let v42 : BitVec 1 := Scalar.cmpi .sge v41 c2_i32_27
  let v43 : BitVec 32 := Scalar.extui v42
  let c0_i32_28 : BitVec 32 := 0#32
  let v44 : BitVec 1 := Scalar.cmpi .ne v43 c0_i32_28
  v44

def k10_off2 (i : grid10.Coords) (k10_t1 : Fin k10_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_21 : BitVec 32 := 0#32
  let c1_i32_22 : BitVec 32 := 1#32
  let arg12 : BitVec 32 := Scf.iv c0_i32_21 c1_i32_22 k10_t1
  let c2_i32_26 : BitVec 32 := 2#32
  let v41 : BitVec 32 := Scalar.muli arg12 c2_i32_26
  let c2_i32_39 : BitVec 32 := 2#32
  let v64 : BitVec 32 := Scalar.subi v41 c2_i32_39
  let c32_i32_40 : BitVec 32 := 32#32
  let v65 : BitVec 32 := Scalar.muli v64 c32_i32_40
  let v66 : BitVec 32 := Scalar.addi v1 v65
  let c3200_i32_41 : BitVec 32 := 3200#32
  let v67 : BitVec 32 := Scalar.muli v66 c3200_i32_41
  ![v67.toNat]
def k10_cond2 (i : grid10.Coords) (k10_t1 : Fin k10_t1_loop.trips) : BitVec 1 :=
  let c0_i32_21 : BitVec 32 := 0#32
  let c1_i32_22 : BitVec 32 := 1#32
  let arg12 : BitVec 32 := Scf.iv c0_i32_21 c1_i32_22 k10_t1
  let c2_i32_26 : BitVec 32 := 2#32
  let v41 : BitVec 32 := Scalar.muli arg12 c2_i32_26
  let c500_i32 : BitVec 32 := 500#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v2 : BitVec 32 := Scalar.subi c500_i32 v1
  let c32_i32 : BitVec 32 := 32#32
  let v3 : BitVec 32 := Scalar.addi v2 c32_i32
  let c1_i32 : BitVec 32 := 1#32
  let v4 : BitVec 32 := Scalar.subi v3 c1_i32
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c32_i32_0 : BitVec 32 := 32#32
  let c0_i32_2 : BitVec 32 := 0#32
  let v11 : BitVec 1 := Scalar.cmpi .sgt c32_i32_0 c0_i32_2
  let v12 : BitVec 32 := Scalar.extui v11
  let c0_i32_3 : BitVec 32 := 0#32
  let v13 : BitVec 1 := Scalar.cmpi .slt c32_i32_0 c0_i32_3
  let v14 : BitVec 32 := Scalar.extui v13
  let v15 : BitVec 32 := Scalar.subi v12 v14
  let v16 : BitVec 1 := Scalar.cmpi .ne v10 v15
  let v17 : BitVec 32 := Scalar.remsi v4 c32_i32_0
  let c0_i32_4 : BitVec 32 := 0#32
  let v18 : BitVec 1 := Scalar.cmpi .ne v17 c0_i32_4
  let v19 : BitVec 1 := Scalar.andi v16 v18
  let v5 : BitVec 32 := Scalar.divsi v4 c32_i32_0
  let c1_i32_5 : BitVec 32 := 1#32
  let v20 : BitVec 32 := Scalar.subi v5 c1_i32_5
  let v21 : BitVec 32 := Scalar.select v19 v20 v5
  let v45 : BitVec 1 := Scalar.cmpi .slt v41 v21
  let v46 : BitVec 32 := Scalar.extui v45
  let c0_i32_29 : BitVec 32 := 0#32
  let v47 : BitVec 1 := Scalar.cmpi .ne v46 c0_i32_29
  v47

@[reducible] def k10_t2_loop : Scf.Loop 32 :=
  let c0_i32_48 : BitVec 32 := 0#32
  let c200_i32 : BitVec 32 := 200#32
  let v68 : BitVec 32 := Scalar.addi c0_i32_48 c200_i32
  let c1_i32_49 : BitVec 32 := 1#32
  ⟨c0_i32_48, v68, c1_i32_49⟩
def k10_off3 (k10_t2 : Fin k10_t2_loop.trips) : Fin 2 → Nat :=
  let c0_i32_55 : BitVec 32 := 0#32
  let v77 : Index := Scalar.indexCast c0_i32_55
  let c0_i32_48 : BitVec 32 := 0#32
  let c1_i32_49 : BitVec 32 := 1#32
  let arg13 : BitVec 32 := Scf.iv c0_i32_48 c1_i32_49 k10_t2
  let c16_i32 : BitVec 32 := 16#32
  let v76 : BitVec 32 := Scalar.muli arg13 c16_i32
  let v78 : Index := Scalar.indexCast v76
  ![0, v78.toNat]
def k10_off4 (k10_t2 : Fin k10_t2_loop.trips) : Fin 1 → Nat :=
  let c0_i32_57 : BitVec 32 := 0#32
  let c0_i32_48 : BitVec 32 := 0#32
  let c1_i32_49 : BitVec 32 := 1#32
  let arg13 : BitVec 32 := Scf.iv c0_i32_48 c1_i32_49 k10_t2
  let c16_i32_56 : BitVec 32 := 16#32
  let v80 : BitVec 32 := Scalar.muli arg13 c16_i32_56
  let v81 : BitVec 32 := Scalar.addi c0_i32_57 v80
  let v82 : Index := Scalar.indexCast v81
  ![v82.toNat]
def k10_off5 (i : grid10.Coords) (k10_t1 : Fin k10_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_21 : BitVec 32 := 0#32
  let c1_i32_22 : BitVec 32 := 1#32
  let arg12 : BitVec 32 := Scf.iv c0_i32_21 c1_i32_22 k10_t1
  let c2_i32_26 : BitVec 32 := 2#32
  let v41 : BitVec 32 := Scalar.muli arg12 c2_i32_26
  let c32_i32_51 : BitVec 32 := 32#32
  let v69 : BitVec 32 := Scalar.muli v41 c32_i32_51
  let v70 : BitVec 32 := Scalar.addi v1 v69
  let c3200_i32_52 : BitVec 32 := 3200#32
  let v71 : BitVec 32 := Scalar.muli v70 c3200_i32_52
  ![v71.toNat]
def k10_cond3 (i : grid10.Coords) (k10_t1 : Fin k10_t1_loop.trips) : BitVec 1 :=
  let c0_i32_21 : BitVec 32 := 0#32
  let c1_i32_22 : BitVec 32 := 1#32
  let arg12 : BitVec 32 := Scf.iv c0_i32_21 c1_i32_22 k10_t1
  let c2_i32_26 : BitVec 32 := 2#32
  let v41 : BitVec 32 := Scalar.muli arg12 c2_i32_26
  let c2_i32_30 : BitVec 32 := 2#32
  let v48 : BitVec 32 := Scalar.addi v41 c2_i32_30
  let c500_i32 : BitVec 32 := 500#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v2 : BitVec 32 := Scalar.subi c500_i32 v1
  let c32_i32 : BitVec 32 := 32#32
  let v3 : BitVec 32 := Scalar.addi v2 c32_i32
  let c1_i32 : BitVec 32 := 1#32
  let v4 : BitVec 32 := Scalar.subi v3 c1_i32
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c32_i32_0 : BitVec 32 := 32#32
  let c0_i32_2 : BitVec 32 := 0#32
  let v11 : BitVec 1 := Scalar.cmpi .sgt c32_i32_0 c0_i32_2
  let v12 : BitVec 32 := Scalar.extui v11
  let c0_i32_3 : BitVec 32 := 0#32
  let v13 : BitVec 1 := Scalar.cmpi .slt c32_i32_0 c0_i32_3
  let v14 : BitVec 32 := Scalar.extui v13
  let v15 : BitVec 32 := Scalar.subi v12 v14
  let v16 : BitVec 1 := Scalar.cmpi .ne v10 v15
  let v17 : BitVec 32 := Scalar.remsi v4 c32_i32_0
  let c0_i32_4 : BitVec 32 := 0#32
  let v18 : BitVec 1 := Scalar.cmpi .ne v17 c0_i32_4
  let v19 : BitVec 1 := Scalar.andi v16 v18
  let v5 : BitVec 32 := Scalar.divsi v4 c32_i32_0
  let c1_i32_5 : BitVec 32 := 1#32
  let v20 : BitVec 32 := Scalar.subi v5 c1_i32_5
  let v21 : BitVec 32 := Scalar.select v19 v20 v5
  let v49 : BitVec 1 := Scalar.cmpi .slt v48 v21
  let v50 : BitVec 32 := Scalar.extui v49
  let c0_i32_31 : BitVec 32 := 0#32
  let v51 : BitVec 1 := Scalar.cmpi .ne v50 c0_i32_31
  v51

def k10_off6 (i : grid10.Coords) (k10_t1 : Fin k10_t1_loop.trips) : Fin 2 → Nat :=
  let c10_i32_44 : BitVec 32 := 10#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_21 : BitVec 32 := 0#32
  let c1_i32_22 : BitVec 32 := 1#32
  let arg12 : BitVec 32 := Scf.iv c0_i32_21 c1_i32_22 k10_t1
  let c2_i32_26 : BitVec 32 := 2#32
  let v41 : BitVec 32 := Scalar.muli arg12 c2_i32_26
  let c2_i32_39 : BitVec 32 := 2#32
  let v64 : BitVec 32 := Scalar.addi v41 c2_i32_39
  let c32_i32_40 : BitVec 32 := 32#32
  let v65 : BitVec 32 := Scalar.muli v64 c32_i32_40
  let v66 : BitVec 32 := Scalar.addi v1 v65
  let c3200_i32_41 : BitVec 32 := 3200#32
  let v67 : BitVec 32 := Scalar.muli v66 c3200_i32_41
  ![10, v67.toNat]
def k10_cond4 (k10_t1 : Fin k10_t1_loop.trips) : BitVec 1 :=
  let c0_i32_21 : BitVec 32 := 0#32
  let c1_i32_22 : BitVec 32 := 1#32
  let arg12 : BitVec 32 := Scf.iv c0_i32_21 c1_i32_22 k10_t1
  let c2_i32_32 : BitVec 32 := 2#32
  let v52 : BitVec 32 := Scalar.muli arg12 c2_i32_32
  let c1_i32_33 : BitVec 32 := 1#32
  let v53 : BitVec 32 := Scalar.addi v52 c1_i32_33
  let c2_i32_34 : BitVec 32 := 2#32
  let v54 : BitVec 1 := Scalar.cmpi .sge v53 c2_i32_34
  let v55 : BitVec 32 := Scalar.extui v54
  let c0_i32_35 : BitVec 32 := 0#32
  let v56 : BitVec 1 := Scalar.cmpi .ne v55 c0_i32_35
  v56

def k10_off7 (i : grid10.Coords) (k10_t1 : Fin k10_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_21 : BitVec 32 := 0#32
  let c1_i32_22 : BitVec 32 := 1#32
  let arg12 : BitVec 32 := Scf.iv c0_i32_21 c1_i32_22 k10_t1
  let c2_i32_32 : BitVec 32 := 2#32
  let v52 : BitVec 32 := Scalar.muli arg12 c2_i32_32
  let c1_i32_33 : BitVec 32 := 1#32
  let v53 : BitVec 32 := Scalar.addi v52 c1_i32_33
  let c2_i32_39 : BitVec 32 := 2#32
  let v64 : BitVec 32 := Scalar.subi v53 c2_i32_39
  let c32_i32_40 : BitVec 32 := 32#32
  let v65 : BitVec 32 := Scalar.muli v64 c32_i32_40
  let v66 : BitVec 32 := Scalar.addi v1 v65
  let c3200_i32_41 : BitVec 32 := 3200#32
  let v67 : BitVec 32 := Scalar.muli v66 c3200_i32_41
  ![v67.toNat]
def k10_cond5 (i : grid10.Coords) (k10_t1 : Fin k10_t1_loop.trips) : BitVec 1 :=
  let c0_i32_21 : BitVec 32 := 0#32
  let c1_i32_22 : BitVec 32 := 1#32
  let arg12 : BitVec 32 := Scf.iv c0_i32_21 c1_i32_22 k10_t1
  let c2_i32_32 : BitVec 32 := 2#32
  let v52 : BitVec 32 := Scalar.muli arg12 c2_i32_32
  let c1_i32_33 : BitVec 32 := 1#32
  let v53 : BitVec 32 := Scalar.addi v52 c1_i32_33
  let c500_i32 : BitVec 32 := 500#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v2 : BitVec 32 := Scalar.subi c500_i32 v1
  let c32_i32 : BitVec 32 := 32#32
  let v3 : BitVec 32 := Scalar.addi v2 c32_i32
  let c1_i32 : BitVec 32 := 1#32
  let v4 : BitVec 32 := Scalar.subi v3 c1_i32
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c32_i32_0 : BitVec 32 := 32#32
  let c0_i32_2 : BitVec 32 := 0#32
  let v11 : BitVec 1 := Scalar.cmpi .sgt c32_i32_0 c0_i32_2
  let v12 : BitVec 32 := Scalar.extui v11
  let c0_i32_3 : BitVec 32 := 0#32
  let v13 : BitVec 1 := Scalar.cmpi .slt c32_i32_0 c0_i32_3
  let v14 : BitVec 32 := Scalar.extui v13
  let v15 : BitVec 32 := Scalar.subi v12 v14
  let v16 : BitVec 1 := Scalar.cmpi .ne v10 v15
  let v17 : BitVec 32 := Scalar.remsi v4 c32_i32_0
  let c0_i32_4 : BitVec 32 := 0#32
  let v18 : BitVec 1 := Scalar.cmpi .ne v17 c0_i32_4
  let v19 : BitVec 1 := Scalar.andi v16 v18
  let v5 : BitVec 32 := Scalar.divsi v4 c32_i32_0
  let c1_i32_5 : BitVec 32 := 1#32
  let v20 : BitVec 32 := Scalar.subi v5 c1_i32_5
  let v21 : BitVec 32 := Scalar.select v19 v20 v5
  let v57 : BitVec 1 := Scalar.cmpi .slt v53 v21
  let v58 : BitVec 32 := Scalar.extui v57
  let c0_i32_36 : BitVec 32 := 0#32
  let v59 : BitVec 1 := Scalar.cmpi .ne v58 c0_i32_36
  v59

@[reducible] def k10_t3_loop : Scf.Loop 32 :=
  let c0_i32_48 : BitVec 32 := 0#32
  let c200_i32 : BitVec 32 := 200#32
  let v68 : BitVec 32 := Scalar.addi c0_i32_48 c200_i32
  let c1_i32_49 : BitVec 32 := 1#32
  ⟨c0_i32_48, v68, c1_i32_49⟩
def k10_off8 (k10_t3 : Fin k10_t3_loop.trips) : Fin 2 → Nat :=
  let c0_i32_55 : BitVec 32 := 0#32
  let v77 : Index := Scalar.indexCast c0_i32_55
  let c0_i32_48 : BitVec 32 := 0#32
  let c1_i32_49 : BitVec 32 := 1#32
  let arg13 : BitVec 32 := Scf.iv c0_i32_48 c1_i32_49 k10_t3
  let c16_i32 : BitVec 32 := 16#32
  let v76 : BitVec 32 := Scalar.muli arg13 c16_i32
  let v78 : Index := Scalar.indexCast v76
  ![0, v78.toNat]
def k10_off9 (k10_t3 : Fin k10_t3_loop.trips) : Fin 1 → Nat :=
  let c0_i32_57 : BitVec 32 := 0#32
  let c0_i32_48 : BitVec 32 := 0#32
  let c1_i32_49 : BitVec 32 := 1#32
  let arg13 : BitVec 32 := Scf.iv c0_i32_48 c1_i32_49 k10_t3
  let c16_i32_56 : BitVec 32 := 16#32
  let v80 : BitVec 32 := Scalar.muli arg13 c16_i32_56
  let v81 : BitVec 32 := Scalar.addi c0_i32_57 v80
  let v82 : Index := Scalar.indexCast v81
  ![v82.toNat]
def k10_off10 (i : grid10.Coords) (k10_t1 : Fin k10_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_21 : BitVec 32 := 0#32
  let c1_i32_22 : BitVec 32 := 1#32
  let arg12 : BitVec 32 := Scf.iv c0_i32_21 c1_i32_22 k10_t1
  let c2_i32_32 : BitVec 32 := 2#32
  let v52 : BitVec 32 := Scalar.muli arg12 c2_i32_32
  let c1_i32_33 : BitVec 32 := 1#32
  let v53 : BitVec 32 := Scalar.addi v52 c1_i32_33
  let c32_i32_51 : BitVec 32 := 32#32
  let v69 : BitVec 32 := Scalar.muli v53 c32_i32_51
  let v70 : BitVec 32 := Scalar.addi v1 v69
  let c3200_i32_52 : BitVec 32 := 3200#32
  let v71 : BitVec 32 := Scalar.muli v70 c3200_i32_52
  ![v71.toNat]
def k10_cond6 (i : grid10.Coords) (k10_t1 : Fin k10_t1_loop.trips) : BitVec 1 :=
  let c0_i32_21 : BitVec 32 := 0#32
  let c1_i32_22 : BitVec 32 := 1#32
  let arg12 : BitVec 32 := Scf.iv c0_i32_21 c1_i32_22 k10_t1
  let c2_i32_32 : BitVec 32 := 2#32
  let v52 : BitVec 32 := Scalar.muli arg12 c2_i32_32
  let c1_i32_33 : BitVec 32 := 1#32
  let v53 : BitVec 32 := Scalar.addi v52 c1_i32_33
  let c2_i32_37 : BitVec 32 := 2#32
  let v60 : BitVec 32 := Scalar.addi v53 c2_i32_37
  let c500_i32 : BitVec 32 := 500#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v2 : BitVec 32 := Scalar.subi c500_i32 v1
  let c32_i32 : BitVec 32 := 32#32
  let v3 : BitVec 32 := Scalar.addi v2 c32_i32
  let c1_i32 : BitVec 32 := 1#32
  let v4 : BitVec 32 := Scalar.subi v3 c1_i32
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c32_i32_0 : BitVec 32 := 32#32
  let c0_i32_2 : BitVec 32 := 0#32
  let v11 : BitVec 1 := Scalar.cmpi .sgt c32_i32_0 c0_i32_2
  let v12 : BitVec 32 := Scalar.extui v11
  let c0_i32_3 : BitVec 32 := 0#32
  let v13 : BitVec 1 := Scalar.cmpi .slt c32_i32_0 c0_i32_3
  let v14 : BitVec 32 := Scalar.extui v13
  let v15 : BitVec 32 := Scalar.subi v12 v14
  let v16 : BitVec 1 := Scalar.cmpi .ne v10 v15
  let v17 : BitVec 32 := Scalar.remsi v4 c32_i32_0
  let c0_i32_4 : BitVec 32 := 0#32
  let v18 : BitVec 1 := Scalar.cmpi .ne v17 c0_i32_4
  let v19 : BitVec 1 := Scalar.andi v16 v18
  let v5 : BitVec 32 := Scalar.divsi v4 c32_i32_0
  let c1_i32_5 : BitVec 32 := 1#32
  let v20 : BitVec 32 := Scalar.subi v5 c1_i32_5
  let v21 : BitVec 32 := Scalar.select v19 v20 v5
  let v61 : BitVec 1 := Scalar.cmpi .slt v60 v21
  let v62 : BitVec 32 := Scalar.extui v61
  let c0_i32_38 : BitVec 32 := 0#32
  let v63 : BitVec 1 := Scalar.cmpi .ne v62 c0_i32_38
  v63

def k10_off11 (i : grid10.Coords) (k10_t1 : Fin k10_t1_loop.trips) : Fin 2 → Nat :=
  let c10_i32_44 : BitVec 32 := 10#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_21 : BitVec 32 := 0#32
  let c1_i32_22 : BitVec 32 := 1#32
  let arg12 : BitVec 32 := Scf.iv c0_i32_21 c1_i32_22 k10_t1
  let c2_i32_32 : BitVec 32 := 2#32
  let v52 : BitVec 32 := Scalar.muli arg12 c2_i32_32
  let c1_i32_33 : BitVec 32 := 1#32
  let v53 : BitVec 32 := Scalar.addi v52 c1_i32_33
  let c2_i32_39 : BitVec 32 := 2#32
  let v64 : BitVec 32 := Scalar.addi v53 c2_i32_39
  let c32_i32_40 : BitVec 32 := 32#32
  let v65 : BitVec 32 := Scalar.muli v64 c32_i32_40
  let v66 : BitVec 32 := Scalar.addi v1 v65
  let c3200_i32_41 : BitVec 32 := 3200#32
  let v67 : BitVec 32 := Scalar.muli v66 c3200_i32_41
  ![10, v67.toNat]
def k10_cond7 (i : grid10.Coords) : BitVec 1 :=
  let c500_i32 : BitVec 32 := 500#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v2 : BitVec 32 := Scalar.subi c500_i32 v1
  let c32_i32 : BitVec 32 := 32#32
  let v3 : BitVec 32 := Scalar.addi v2 c32_i32
  let c1_i32 : BitVec 32 := 1#32
  let v4 : BitVec 32 := Scalar.subi v3 c1_i32
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c32_i32_0 : BitVec 32 := 32#32
  let c0_i32_2 : BitVec 32 := 0#32
  let v11 : BitVec 1 := Scalar.cmpi .sgt c32_i32_0 c0_i32_2
  let v12 : BitVec 32 := Scalar.extui v11
  let c0_i32_3 : BitVec 32 := 0#32
  let v13 : BitVec 1 := Scalar.cmpi .slt c32_i32_0 c0_i32_3
  let v14 : BitVec 32 := Scalar.extui v13
  let v15 : BitVec 32 := Scalar.subi v12 v14
  let v16 : BitVec 1 := Scalar.cmpi .ne v10 v15
  let v17 : BitVec 32 := Scalar.remsi v4 c32_i32_0
  let c0_i32_4 : BitVec 32 := 0#32
  let v18 : BitVec 1 := Scalar.cmpi .ne v17 c0_i32_4
  let v19 : BitVec 1 := Scalar.andi v16 v18
  let v5 : BitVec 32 := Scalar.divsi v4 c32_i32_0
  let c1_i32_5 : BitVec 32 := 1#32
  let v20 : BitVec 32 := Scalar.subi v5 c1_i32_5
  let v21 : BitVec 32 := Scalar.select v19 v20 v5
  let c14_i32 : BitVec 32 := 14#32
  let v35 : BitVec 1 := Scalar.cmpi .sgt v21 c14_i32
  let v36 : BitVec 32 := Scalar.extui v35
  let c0_i32_24 : BitVec 32 := 0#32
  let v37 : BitVec 1 := Scalar.cmpi .ne v36 c0_i32_24
  v37

def k10_off12 (i : grid10.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c448_i32 : BitVec 32 := 448#32
  let v41 : BitVec 32 := Scalar.addi v1 c448_i32
  let c3200_i32_26 : BitVec 32 := 3200#32
  let v42 : BitVec 32 := Scalar.muli v41 c3200_i32_26
  ![v42.toNat]
def k10_cond8 (i : grid10.Coords) : BitVec 1 :=
  let c500_i32 : BitVec 32 := 500#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v2 : BitVec 32 := Scalar.subi c500_i32 v1
  let c32_i32 : BitVec 32 := 32#32
  let v3 : BitVec 32 := Scalar.addi v2 c32_i32
  let c1_i32 : BitVec 32 := 1#32
  let v4 : BitVec 32 := Scalar.subi v3 c1_i32
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c32_i32_0 : BitVec 32 := 32#32
  let c0_i32_2 : BitVec 32 := 0#32
  let v11 : BitVec 1 := Scalar.cmpi .sgt c32_i32_0 c0_i32_2
  let v12 : BitVec 32 := Scalar.extui v11
  let c0_i32_3 : BitVec 32 := 0#32
  let v13 : BitVec 1 := Scalar.cmpi .slt c32_i32_0 c0_i32_3
  let v14 : BitVec 32 := Scalar.extui v13
  let v15 : BitVec 32 := Scalar.subi v12 v14
  let v16 : BitVec 1 := Scalar.cmpi .ne v10 v15
  let v17 : BitVec 32 := Scalar.remsi v4 c32_i32_0
  let c0_i32_4 : BitVec 32 := 0#32
  let v18 : BitVec 1 := Scalar.cmpi .ne v17 c0_i32_4
  let v19 : BitVec 1 := Scalar.andi v16 v18
  let v5 : BitVec 32 := Scalar.divsi v4 c32_i32_0
  let c1_i32_5 : BitVec 32 := 1#32
  let v20 : BitVec 32 := Scalar.subi v5 c1_i32_5
  let v21 : BitVec 32 := Scalar.select v19 v20 v5
  let c15_i32 : BitVec 32 := 15#32
  let v38 : BitVec 1 := Scalar.cmpi .sgt v21 c15_i32
  let v39 : BitVec 32 := Scalar.extui v38
  let c0_i32_25 : BitVec 32 := 0#32
  let v40 : BitVec 1 := Scalar.cmpi .ne v39 c0_i32_25
  v40

def k10_off13 (i : grid10.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c480_i32 : BitVec 32 := 480#32
  let v41 : BitVec 32 := Scalar.addi v1 c480_i32
  let c3200_i32_26 : BitVec 32 := 3200#32
  let v42 : BitVec 32 := Scalar.muli v41 c3200_i32_26
  ![v42.toNat]
abbrev grid11 : Pipeline.Grid := ⟨2, ![2, 16], ![false, false]⟩

def k11_off1 (i : grid11.Coords) (c0_i32_6 : BitVec 32) : Fin 2 → Nat :=
  let c11_i32 : BitVec 32 := 11#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v22 : BitVec 32 := Scalar.addi v1 c0_i32_6
  let c3200_i32 : BitVec 32 := 3200#32
  let v23 : BitVec 32 := Scalar.muli v22 c3200_i32
  ![11, v23.toNat]
@[reducible] def k11_t1_loop : Scf.Loop 32 :=
  let c0_i32_21 : BitVec 32 := 0#32
  let c8_i32 : BitVec 32 := 8#32
  let v34 : BitVec 32 := Scalar.addi c0_i32_21 c8_i32
  let c1_i32_22 : BitVec 32 := 1#32
  ⟨c0_i32_21, v34, c1_i32_22⟩
def k11_cond1 (k11_t1 : Fin k11_t1_loop.trips) : BitVec 1 :=
  let c0_i32_21 : BitVec 32 := 0#32
  let c1_i32_22 : BitVec 32 := 1#32
  let arg12 : BitVec 32 := Scf.iv c0_i32_21 c1_i32_22 k11_t1
  let c2_i32_26 : BitVec 32 := 2#32
  let v41 : BitVec 32 := Scalar.muli arg12 c2_i32_26
  let c2_i32_27 : BitVec 32 := 2#32
  let v42 : BitVec 1 := Scalar.cmpi .sge v41 c2_i32_27
  let v43 : BitVec 32 := Scalar.extui v42
  let c0_i32_28 : BitVec 32 := 0#32
  let v44 : BitVec 1 := Scalar.cmpi .ne v43 c0_i32_28
  v44

def k11_off2 (i : grid11.Coords) (k11_t1 : Fin k11_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_21 : BitVec 32 := 0#32
  let c1_i32_22 : BitVec 32 := 1#32
  let arg12 : BitVec 32 := Scf.iv c0_i32_21 c1_i32_22 k11_t1
  let c2_i32_26 : BitVec 32 := 2#32
  let v41 : BitVec 32 := Scalar.muli arg12 c2_i32_26
  let c2_i32_39 : BitVec 32 := 2#32
  let v64 : BitVec 32 := Scalar.subi v41 c2_i32_39
  let c32_i32_40 : BitVec 32 := 32#32
  let v65 : BitVec 32 := Scalar.muli v64 c32_i32_40
  let v66 : BitVec 32 := Scalar.addi v1 v65
  let c3200_i32_41 : BitVec 32 := 3200#32
  let v67 : BitVec 32 := Scalar.muli v66 c3200_i32_41
  ![v67.toNat]
def k11_cond2 (i : grid11.Coords) (k11_t1 : Fin k11_t1_loop.trips) : BitVec 1 :=
  let c0_i32_21 : BitVec 32 := 0#32
  let c1_i32_22 : BitVec 32 := 1#32
  let arg12 : BitVec 32 := Scf.iv c0_i32_21 c1_i32_22 k11_t1
  let c2_i32_26 : BitVec 32 := 2#32
  let v41 : BitVec 32 := Scalar.muli arg12 c2_i32_26
  let c500_i32 : BitVec 32 := 500#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v2 : BitVec 32 := Scalar.subi c500_i32 v1
  let c32_i32 : BitVec 32 := 32#32
  let v3 : BitVec 32 := Scalar.addi v2 c32_i32
  let c1_i32 : BitVec 32 := 1#32
  let v4 : BitVec 32 := Scalar.subi v3 c1_i32
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c32_i32_0 : BitVec 32 := 32#32
  let c0_i32_2 : BitVec 32 := 0#32
  let v11 : BitVec 1 := Scalar.cmpi .sgt c32_i32_0 c0_i32_2
  let v12 : BitVec 32 := Scalar.extui v11
  let c0_i32_3 : BitVec 32 := 0#32
  let v13 : BitVec 1 := Scalar.cmpi .slt c32_i32_0 c0_i32_3
  let v14 : BitVec 32 := Scalar.extui v13
  let v15 : BitVec 32 := Scalar.subi v12 v14
  let v16 : BitVec 1 := Scalar.cmpi .ne v10 v15
  let v17 : BitVec 32 := Scalar.remsi v4 c32_i32_0
  let c0_i32_4 : BitVec 32 := 0#32
  let v18 : BitVec 1 := Scalar.cmpi .ne v17 c0_i32_4
  let v19 : BitVec 1 := Scalar.andi v16 v18
  let v5 : BitVec 32 := Scalar.divsi v4 c32_i32_0
  let c1_i32_5 : BitVec 32 := 1#32
  let v20 : BitVec 32 := Scalar.subi v5 c1_i32_5
  let v21 : BitVec 32 := Scalar.select v19 v20 v5
  let v45 : BitVec 1 := Scalar.cmpi .slt v41 v21
  let v46 : BitVec 32 := Scalar.extui v45
  let c0_i32_29 : BitVec 32 := 0#32
  let v47 : BitVec 1 := Scalar.cmpi .ne v46 c0_i32_29
  v47

@[reducible] def k11_t2_loop : Scf.Loop 32 :=
  let c0_i32_48 : BitVec 32 := 0#32
  let c200_i32 : BitVec 32 := 200#32
  let v68 : BitVec 32 := Scalar.addi c0_i32_48 c200_i32
  let c1_i32_49 : BitVec 32 := 1#32
  ⟨c0_i32_48, v68, c1_i32_49⟩
def k11_off3 (k11_t2 : Fin k11_t2_loop.trips) : Fin 2 → Nat :=
  let c0_i32_55 : BitVec 32 := 0#32
  let v77 : Index := Scalar.indexCast c0_i32_55
  let c0_i32_48 : BitVec 32 := 0#32
  let c1_i32_49 : BitVec 32 := 1#32
  let arg13 : BitVec 32 := Scf.iv c0_i32_48 c1_i32_49 k11_t2
  let c16_i32 : BitVec 32 := 16#32
  let v76 : BitVec 32 := Scalar.muli arg13 c16_i32
  let v78 : Index := Scalar.indexCast v76
  ![0, v78.toNat]
def k11_off4 (k11_t2 : Fin k11_t2_loop.trips) : Fin 1 → Nat :=
  let c0_i32_57 : BitVec 32 := 0#32
  let c0_i32_48 : BitVec 32 := 0#32
  let c1_i32_49 : BitVec 32 := 1#32
  let arg13 : BitVec 32 := Scf.iv c0_i32_48 c1_i32_49 k11_t2
  let c16_i32_56 : BitVec 32 := 16#32
  let v80 : BitVec 32 := Scalar.muli arg13 c16_i32_56
  let v81 : BitVec 32 := Scalar.addi c0_i32_57 v80
  let v82 : Index := Scalar.indexCast v81
  ![v82.toNat]
def k11_off5 (i : grid11.Coords) (k11_t1 : Fin k11_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_21 : BitVec 32 := 0#32
  let c1_i32_22 : BitVec 32 := 1#32
  let arg12 : BitVec 32 := Scf.iv c0_i32_21 c1_i32_22 k11_t1
  let c2_i32_26 : BitVec 32 := 2#32
  let v41 : BitVec 32 := Scalar.muli arg12 c2_i32_26
  let c32_i32_51 : BitVec 32 := 32#32
  let v69 : BitVec 32 := Scalar.muli v41 c32_i32_51
  let v70 : BitVec 32 := Scalar.addi v1 v69
  let c3200_i32_52 : BitVec 32 := 3200#32
  let v71 : BitVec 32 := Scalar.muli v70 c3200_i32_52
  ![v71.toNat]
def k11_cond3 (i : grid11.Coords) (k11_t1 : Fin k11_t1_loop.trips) : BitVec 1 :=
  let c0_i32_21 : BitVec 32 := 0#32
  let c1_i32_22 : BitVec 32 := 1#32
  let arg12 : BitVec 32 := Scf.iv c0_i32_21 c1_i32_22 k11_t1
  let c2_i32_26 : BitVec 32 := 2#32
  let v41 : BitVec 32 := Scalar.muli arg12 c2_i32_26
  let c2_i32_30 : BitVec 32 := 2#32
  let v48 : BitVec 32 := Scalar.addi v41 c2_i32_30
  let c500_i32 : BitVec 32 := 500#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v2 : BitVec 32 := Scalar.subi c500_i32 v1
  let c32_i32 : BitVec 32 := 32#32
  let v3 : BitVec 32 := Scalar.addi v2 c32_i32
  let c1_i32 : BitVec 32 := 1#32
  let v4 : BitVec 32 := Scalar.subi v3 c1_i32
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c32_i32_0 : BitVec 32 := 32#32
  let c0_i32_2 : BitVec 32 := 0#32
  let v11 : BitVec 1 := Scalar.cmpi .sgt c32_i32_0 c0_i32_2
  let v12 : BitVec 32 := Scalar.extui v11
  let c0_i32_3 : BitVec 32 := 0#32
  let v13 : BitVec 1 := Scalar.cmpi .slt c32_i32_0 c0_i32_3
  let v14 : BitVec 32 := Scalar.extui v13
  let v15 : BitVec 32 := Scalar.subi v12 v14
  let v16 : BitVec 1 := Scalar.cmpi .ne v10 v15
  let v17 : BitVec 32 := Scalar.remsi v4 c32_i32_0
  let c0_i32_4 : BitVec 32 := 0#32
  let v18 : BitVec 1 := Scalar.cmpi .ne v17 c0_i32_4
  let v19 : BitVec 1 := Scalar.andi v16 v18
  let v5 : BitVec 32 := Scalar.divsi v4 c32_i32_0
  let c1_i32_5 : BitVec 32 := 1#32
  let v20 : BitVec 32 := Scalar.subi v5 c1_i32_5
  let v21 : BitVec 32 := Scalar.select v19 v20 v5
  let v49 : BitVec 1 := Scalar.cmpi .slt v48 v21
  let v50 : BitVec 32 := Scalar.extui v49
  let c0_i32_31 : BitVec 32 := 0#32
  let v51 : BitVec 1 := Scalar.cmpi .ne v50 c0_i32_31
  v51

def k11_off6 (i : grid11.Coords) (k11_t1 : Fin k11_t1_loop.trips) : Fin 2 → Nat :=
  let c11_i32_44 : BitVec 32 := 11#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_21 : BitVec 32 := 0#32
  let c1_i32_22 : BitVec 32 := 1#32
  let arg12 : BitVec 32 := Scf.iv c0_i32_21 c1_i32_22 k11_t1
  let c2_i32_26 : BitVec 32 := 2#32
  let v41 : BitVec 32 := Scalar.muli arg12 c2_i32_26
  let c2_i32_39 : BitVec 32 := 2#32
  let v64 : BitVec 32 := Scalar.addi v41 c2_i32_39
  let c32_i32_40 : BitVec 32 := 32#32
  let v65 : BitVec 32 := Scalar.muli v64 c32_i32_40
  let v66 : BitVec 32 := Scalar.addi v1 v65
  let c3200_i32_41 : BitVec 32 := 3200#32
  let v67 : BitVec 32 := Scalar.muli v66 c3200_i32_41
  ![11, v67.toNat]
def k11_cond4 (k11_t1 : Fin k11_t1_loop.trips) : BitVec 1 :=
  let c0_i32_21 : BitVec 32 := 0#32
  let c1_i32_22 : BitVec 32 := 1#32
  let arg12 : BitVec 32 := Scf.iv c0_i32_21 c1_i32_22 k11_t1
  let c2_i32_32 : BitVec 32 := 2#32
  let v52 : BitVec 32 := Scalar.muli arg12 c2_i32_32
  let c1_i32_33 : BitVec 32 := 1#32
  let v53 : BitVec 32 := Scalar.addi v52 c1_i32_33
  let c2_i32_34 : BitVec 32 := 2#32
  let v54 : BitVec 1 := Scalar.cmpi .sge v53 c2_i32_34
  let v55 : BitVec 32 := Scalar.extui v54
  let c0_i32_35 : BitVec 32 := 0#32
  let v56 : BitVec 1 := Scalar.cmpi .ne v55 c0_i32_35
  v56

def k11_off7 (i : grid11.Coords) (k11_t1 : Fin k11_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_21 : BitVec 32 := 0#32
  let c1_i32_22 : BitVec 32 := 1#32
  let arg12 : BitVec 32 := Scf.iv c0_i32_21 c1_i32_22 k11_t1
  let c2_i32_32 : BitVec 32 := 2#32
  let v52 : BitVec 32 := Scalar.muli arg12 c2_i32_32
  let c1_i32_33 : BitVec 32 := 1#32
  let v53 : BitVec 32 := Scalar.addi v52 c1_i32_33
  let c2_i32_39 : BitVec 32 := 2#32
  let v64 : BitVec 32 := Scalar.subi v53 c2_i32_39
  let c32_i32_40 : BitVec 32 := 32#32
  let v65 : BitVec 32 := Scalar.muli v64 c32_i32_40
  let v66 : BitVec 32 := Scalar.addi v1 v65
  let c3200_i32_41 : BitVec 32 := 3200#32
  let v67 : BitVec 32 := Scalar.muli v66 c3200_i32_41
  ![v67.toNat]
def k11_cond5 (i : grid11.Coords) (k11_t1 : Fin k11_t1_loop.trips) : BitVec 1 :=
  let c0_i32_21 : BitVec 32 := 0#32
  let c1_i32_22 : BitVec 32 := 1#32
  let arg12 : BitVec 32 := Scf.iv c0_i32_21 c1_i32_22 k11_t1
  let c2_i32_32 : BitVec 32 := 2#32
  let v52 : BitVec 32 := Scalar.muli arg12 c2_i32_32
  let c1_i32_33 : BitVec 32 := 1#32
  let v53 : BitVec 32 := Scalar.addi v52 c1_i32_33
  let c500_i32 : BitVec 32 := 500#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v2 : BitVec 32 := Scalar.subi c500_i32 v1
  let c32_i32 : BitVec 32 := 32#32
  let v3 : BitVec 32 := Scalar.addi v2 c32_i32
  let c1_i32 : BitVec 32 := 1#32
  let v4 : BitVec 32 := Scalar.subi v3 c1_i32
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c32_i32_0 : BitVec 32 := 32#32
  let c0_i32_2 : BitVec 32 := 0#32
  let v11 : BitVec 1 := Scalar.cmpi .sgt c32_i32_0 c0_i32_2
  let v12 : BitVec 32 := Scalar.extui v11
  let c0_i32_3 : BitVec 32 := 0#32
  let v13 : BitVec 1 := Scalar.cmpi .slt c32_i32_0 c0_i32_3
  let v14 : BitVec 32 := Scalar.extui v13
  let v15 : BitVec 32 := Scalar.subi v12 v14
  let v16 : BitVec 1 := Scalar.cmpi .ne v10 v15
  let v17 : BitVec 32 := Scalar.remsi v4 c32_i32_0
  let c0_i32_4 : BitVec 32 := 0#32
  let v18 : BitVec 1 := Scalar.cmpi .ne v17 c0_i32_4
  let v19 : BitVec 1 := Scalar.andi v16 v18
  let v5 : BitVec 32 := Scalar.divsi v4 c32_i32_0
  let c1_i32_5 : BitVec 32 := 1#32
  let v20 : BitVec 32 := Scalar.subi v5 c1_i32_5
  let v21 : BitVec 32 := Scalar.select v19 v20 v5
  let v57 : BitVec 1 := Scalar.cmpi .slt v53 v21
  let v58 : BitVec 32 := Scalar.extui v57
  let c0_i32_36 : BitVec 32 := 0#32
  let v59 : BitVec 1 := Scalar.cmpi .ne v58 c0_i32_36
  v59

@[reducible] def k11_t3_loop : Scf.Loop 32 :=
  let c0_i32_48 : BitVec 32 := 0#32
  let c200_i32 : BitVec 32 := 200#32
  let v68 : BitVec 32 := Scalar.addi c0_i32_48 c200_i32
  let c1_i32_49 : BitVec 32 := 1#32
  ⟨c0_i32_48, v68, c1_i32_49⟩
def k11_off8 (k11_t3 : Fin k11_t3_loop.trips) : Fin 2 → Nat :=
  let c0_i32_55 : BitVec 32 := 0#32
  let v77 : Index := Scalar.indexCast c0_i32_55
  let c0_i32_48 : BitVec 32 := 0#32
  let c1_i32_49 : BitVec 32 := 1#32
  let arg13 : BitVec 32 := Scf.iv c0_i32_48 c1_i32_49 k11_t3
  let c16_i32 : BitVec 32 := 16#32
  let v76 : BitVec 32 := Scalar.muli arg13 c16_i32
  let v78 : Index := Scalar.indexCast v76
  ![0, v78.toNat]
def k11_off9 (k11_t3 : Fin k11_t3_loop.trips) : Fin 1 → Nat :=
  let c0_i32_57 : BitVec 32 := 0#32
  let c0_i32_48 : BitVec 32 := 0#32
  let c1_i32_49 : BitVec 32 := 1#32
  let arg13 : BitVec 32 := Scf.iv c0_i32_48 c1_i32_49 k11_t3
  let c16_i32_56 : BitVec 32 := 16#32
  let v80 : BitVec 32 := Scalar.muli arg13 c16_i32_56
  let v81 : BitVec 32 := Scalar.addi c0_i32_57 v80
  let v82 : Index := Scalar.indexCast v81
  ![v82.toNat]
def k11_off10 (i : grid11.Coords) (k11_t1 : Fin k11_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_21 : BitVec 32 := 0#32
  let c1_i32_22 : BitVec 32 := 1#32
  let arg12 : BitVec 32 := Scf.iv c0_i32_21 c1_i32_22 k11_t1
  let c2_i32_32 : BitVec 32 := 2#32
  let v52 : BitVec 32 := Scalar.muli arg12 c2_i32_32
  let c1_i32_33 : BitVec 32 := 1#32
  let v53 : BitVec 32 := Scalar.addi v52 c1_i32_33
  let c32_i32_51 : BitVec 32 := 32#32
  let v69 : BitVec 32 := Scalar.muli v53 c32_i32_51
  let v70 : BitVec 32 := Scalar.addi v1 v69
  let c3200_i32_52 : BitVec 32 := 3200#32
  let v71 : BitVec 32 := Scalar.muli v70 c3200_i32_52
  ![v71.toNat]
def k11_cond6 (i : grid11.Coords) (k11_t1 : Fin k11_t1_loop.trips) : BitVec 1 :=
  let c0_i32_21 : BitVec 32 := 0#32
  let c1_i32_22 : BitVec 32 := 1#32
  let arg12 : BitVec 32 := Scf.iv c0_i32_21 c1_i32_22 k11_t1
  let c2_i32_32 : BitVec 32 := 2#32
  let v52 : BitVec 32 := Scalar.muli arg12 c2_i32_32
  let c1_i32_33 : BitVec 32 := 1#32
  let v53 : BitVec 32 := Scalar.addi v52 c1_i32_33
  let c2_i32_37 : BitVec 32 := 2#32
  let v60 : BitVec 32 := Scalar.addi v53 c2_i32_37
  let c500_i32 : BitVec 32 := 500#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v2 : BitVec 32 := Scalar.subi c500_i32 v1
  let c32_i32 : BitVec 32 := 32#32
  let v3 : BitVec 32 := Scalar.addi v2 c32_i32
  let c1_i32 : BitVec 32 := 1#32
  let v4 : BitVec 32 := Scalar.subi v3 c1_i32
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c32_i32_0 : BitVec 32 := 32#32
  let c0_i32_2 : BitVec 32 := 0#32
  let v11 : BitVec 1 := Scalar.cmpi .sgt c32_i32_0 c0_i32_2
  let v12 : BitVec 32 := Scalar.extui v11
  let c0_i32_3 : BitVec 32 := 0#32
  let v13 : BitVec 1 := Scalar.cmpi .slt c32_i32_0 c0_i32_3
  let v14 : BitVec 32 := Scalar.extui v13
  let v15 : BitVec 32 := Scalar.subi v12 v14
  let v16 : BitVec 1 := Scalar.cmpi .ne v10 v15
  let v17 : BitVec 32 := Scalar.remsi v4 c32_i32_0
  let c0_i32_4 : BitVec 32 := 0#32
  let v18 : BitVec 1 := Scalar.cmpi .ne v17 c0_i32_4
  let v19 : BitVec 1 := Scalar.andi v16 v18
  let v5 : BitVec 32 := Scalar.divsi v4 c32_i32_0
  let c1_i32_5 : BitVec 32 := 1#32
  let v20 : BitVec 32 := Scalar.subi v5 c1_i32_5
  let v21 : BitVec 32 := Scalar.select v19 v20 v5
  let v61 : BitVec 1 := Scalar.cmpi .slt v60 v21
  let v62 : BitVec 32 := Scalar.extui v61
  let c0_i32_38 : BitVec 32 := 0#32
  let v63 : BitVec 1 := Scalar.cmpi .ne v62 c0_i32_38
  v63

def k11_off11 (i : grid11.Coords) (k11_t1 : Fin k11_t1_loop.trips) : Fin 2 → Nat :=
  let c11_i32_44 : BitVec 32 := 11#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_21 : BitVec 32 := 0#32
  let c1_i32_22 : BitVec 32 := 1#32
  let arg12 : BitVec 32 := Scf.iv c0_i32_21 c1_i32_22 k11_t1
  let c2_i32_32 : BitVec 32 := 2#32
  let v52 : BitVec 32 := Scalar.muli arg12 c2_i32_32
  let c1_i32_33 : BitVec 32 := 1#32
  let v53 : BitVec 32 := Scalar.addi v52 c1_i32_33
  let c2_i32_39 : BitVec 32 := 2#32
  let v64 : BitVec 32 := Scalar.addi v53 c2_i32_39
  let c32_i32_40 : BitVec 32 := 32#32
  let v65 : BitVec 32 := Scalar.muli v64 c32_i32_40
  let v66 : BitVec 32 := Scalar.addi v1 v65
  let c3200_i32_41 : BitVec 32 := 3200#32
  let v67 : BitVec 32 := Scalar.muli v66 c3200_i32_41
  ![11, v67.toNat]
def k11_cond7 (i : grid11.Coords) : BitVec 1 :=
  let c500_i32 : BitVec 32 := 500#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v2 : BitVec 32 := Scalar.subi c500_i32 v1
  let c32_i32 : BitVec 32 := 32#32
  let v3 : BitVec 32 := Scalar.addi v2 c32_i32
  let c1_i32 : BitVec 32 := 1#32
  let v4 : BitVec 32 := Scalar.subi v3 c1_i32
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c32_i32_0 : BitVec 32 := 32#32
  let c0_i32_2 : BitVec 32 := 0#32
  let v11 : BitVec 1 := Scalar.cmpi .sgt c32_i32_0 c0_i32_2
  let v12 : BitVec 32 := Scalar.extui v11
  let c0_i32_3 : BitVec 32 := 0#32
  let v13 : BitVec 1 := Scalar.cmpi .slt c32_i32_0 c0_i32_3
  let v14 : BitVec 32 := Scalar.extui v13
  let v15 : BitVec 32 := Scalar.subi v12 v14
  let v16 : BitVec 1 := Scalar.cmpi .ne v10 v15
  let v17 : BitVec 32 := Scalar.remsi v4 c32_i32_0
  let c0_i32_4 : BitVec 32 := 0#32
  let v18 : BitVec 1 := Scalar.cmpi .ne v17 c0_i32_4
  let v19 : BitVec 1 := Scalar.andi v16 v18
  let v5 : BitVec 32 := Scalar.divsi v4 c32_i32_0
  let c1_i32_5 : BitVec 32 := 1#32
  let v20 : BitVec 32 := Scalar.subi v5 c1_i32_5
  let v21 : BitVec 32 := Scalar.select v19 v20 v5
  let c14_i32 : BitVec 32 := 14#32
  let v35 : BitVec 1 := Scalar.cmpi .sgt v21 c14_i32
  let v36 : BitVec 32 := Scalar.extui v35
  let c0_i32_24 : BitVec 32 := 0#32
  let v37 : BitVec 1 := Scalar.cmpi .ne v36 c0_i32_24
  v37

def k11_off12 (i : grid11.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c448_i32 : BitVec 32 := 448#32
  let v41 : BitVec 32 := Scalar.addi v1 c448_i32
  let c3200_i32_26 : BitVec 32 := 3200#32
  let v42 : BitVec 32 := Scalar.muli v41 c3200_i32_26
  ![v42.toNat]
def k11_cond8 (i : grid11.Coords) : BitVec 1 :=
  let c500_i32 : BitVec 32 := 500#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v2 : BitVec 32 := Scalar.subi c500_i32 v1
  let c32_i32 : BitVec 32 := 32#32
  let v3 : BitVec 32 := Scalar.addi v2 c32_i32
  let c1_i32 : BitVec 32 := 1#32
  let v4 : BitVec 32 := Scalar.subi v3 c1_i32
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c32_i32_0 : BitVec 32 := 32#32
  let c0_i32_2 : BitVec 32 := 0#32
  let v11 : BitVec 1 := Scalar.cmpi .sgt c32_i32_0 c0_i32_2
  let v12 : BitVec 32 := Scalar.extui v11
  let c0_i32_3 : BitVec 32 := 0#32
  let v13 : BitVec 1 := Scalar.cmpi .slt c32_i32_0 c0_i32_3
  let v14 : BitVec 32 := Scalar.extui v13
  let v15 : BitVec 32 := Scalar.subi v12 v14
  let v16 : BitVec 1 := Scalar.cmpi .ne v10 v15
  let v17 : BitVec 32 := Scalar.remsi v4 c32_i32_0
  let c0_i32_4 : BitVec 32 := 0#32
  let v18 : BitVec 1 := Scalar.cmpi .ne v17 c0_i32_4
  let v19 : BitVec 1 := Scalar.andi v16 v18
  let v5 : BitVec 32 := Scalar.divsi v4 c32_i32_0
  let c1_i32_5 : BitVec 32 := 1#32
  let v20 : BitVec 32 := Scalar.subi v5 c1_i32_5
  let v21 : BitVec 32 := Scalar.select v19 v20 v5
  let c15_i32 : BitVec 32 := 15#32
  let v38 : BitVec 1 := Scalar.cmpi .sgt v21 c15_i32
  let v39 : BitVec 32 := Scalar.extui v38
  let c0_i32_25 : BitVec 32 := 0#32
  let v40 : BitVec 1 := Scalar.cmpi .ne v39 c0_i32_25
  v40

def k11_off13 (i : grid11.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c480_i32 : BitVec 32 := 480#32
  let v41 : BitVec 32 := Scalar.addi v1 c480_i32
  let c3200_i32_26 : BitVec 32 := 3200#32
  let v42 : BitVec 32 := Scalar.muli v41 c3200_i32_26
  ![v42.toNat]
abbrev grid12 : Pipeline.Grid := ⟨2, ![2, 16], ![false, false]⟩

def k12_off1 (i : grid12.Coords) (c0_i32_6 : BitVec 32) : Fin 2 → Nat :=
  let c12_i32 : BitVec 32 := 12#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v22 : BitVec 32 := Scalar.addi v1 c0_i32_6
  let c3200_i32 : BitVec 32 := 3200#32
  let v23 : BitVec 32 := Scalar.muli v22 c3200_i32
  ![12, v23.toNat]
@[reducible] def k12_t1_loop : Scf.Loop 32 :=
  let c0_i32_21 : BitVec 32 := 0#32
  let c8_i32 : BitVec 32 := 8#32
  let v34 : BitVec 32 := Scalar.addi c0_i32_21 c8_i32
  let c1_i32_22 : BitVec 32 := 1#32
  ⟨c0_i32_21, v34, c1_i32_22⟩
def k12_cond1 (k12_t1 : Fin k12_t1_loop.trips) : BitVec 1 :=
  let c0_i32_21 : BitVec 32 := 0#32
  let c1_i32_22 : BitVec 32 := 1#32
  let arg12 : BitVec 32 := Scf.iv c0_i32_21 c1_i32_22 k12_t1
  let c2_i32_26 : BitVec 32 := 2#32
  let v41 : BitVec 32 := Scalar.muli arg12 c2_i32_26
  let c2_i32_27 : BitVec 32 := 2#32
  let v42 : BitVec 1 := Scalar.cmpi .sge v41 c2_i32_27
  let v43 : BitVec 32 := Scalar.extui v42
  let c0_i32_28 : BitVec 32 := 0#32
  let v44 : BitVec 1 := Scalar.cmpi .ne v43 c0_i32_28
  v44

def k12_off2 (i : grid12.Coords) (k12_t1 : Fin k12_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_21 : BitVec 32 := 0#32
  let c1_i32_22 : BitVec 32 := 1#32
  let arg12 : BitVec 32 := Scf.iv c0_i32_21 c1_i32_22 k12_t1
  let c2_i32_26 : BitVec 32 := 2#32
  let v41 : BitVec 32 := Scalar.muli arg12 c2_i32_26
  let c2_i32_39 : BitVec 32 := 2#32
  let v64 : BitVec 32 := Scalar.subi v41 c2_i32_39
  let c32_i32_40 : BitVec 32 := 32#32
  let v65 : BitVec 32 := Scalar.muli v64 c32_i32_40
  let v66 : BitVec 32 := Scalar.addi v1 v65
  let c3200_i32_41 : BitVec 32 := 3200#32
  let v67 : BitVec 32 := Scalar.muli v66 c3200_i32_41
  ![v67.toNat]
def k12_cond2 (i : grid12.Coords) (k12_t1 : Fin k12_t1_loop.trips) : BitVec 1 :=
  let c0_i32_21 : BitVec 32 := 0#32
  let c1_i32_22 : BitVec 32 := 1#32
  let arg12 : BitVec 32 := Scf.iv c0_i32_21 c1_i32_22 k12_t1
  let c2_i32_26 : BitVec 32 := 2#32
  let v41 : BitVec 32 := Scalar.muli arg12 c2_i32_26
  let c500_i32 : BitVec 32 := 500#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v2 : BitVec 32 := Scalar.subi c500_i32 v1
  let c32_i32 : BitVec 32 := 32#32
  let v3 : BitVec 32 := Scalar.addi v2 c32_i32
  let c1_i32 : BitVec 32 := 1#32
  let v4 : BitVec 32 := Scalar.subi v3 c1_i32
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c32_i32_0 : BitVec 32 := 32#32
  let c0_i32_2 : BitVec 32 := 0#32
  let v11 : BitVec 1 := Scalar.cmpi .sgt c32_i32_0 c0_i32_2
  let v12 : BitVec 32 := Scalar.extui v11
  let c0_i32_3 : BitVec 32 := 0#32
  let v13 : BitVec 1 := Scalar.cmpi .slt c32_i32_0 c0_i32_3
  let v14 : BitVec 32 := Scalar.extui v13
  let v15 : BitVec 32 := Scalar.subi v12 v14
  let v16 : BitVec 1 := Scalar.cmpi .ne v10 v15
  let v17 : BitVec 32 := Scalar.remsi v4 c32_i32_0
  let c0_i32_4 : BitVec 32 := 0#32
  let v18 : BitVec 1 := Scalar.cmpi .ne v17 c0_i32_4
  let v19 : BitVec 1 := Scalar.andi v16 v18
  let v5 : BitVec 32 := Scalar.divsi v4 c32_i32_0
  let c1_i32_5 : BitVec 32 := 1#32
  let v20 : BitVec 32 := Scalar.subi v5 c1_i32_5
  let v21 : BitVec 32 := Scalar.select v19 v20 v5
  let v45 : BitVec 1 := Scalar.cmpi .slt v41 v21
  let v46 : BitVec 32 := Scalar.extui v45
  let c0_i32_29 : BitVec 32 := 0#32
  let v47 : BitVec 1 := Scalar.cmpi .ne v46 c0_i32_29
  v47

@[reducible] def k12_t2_loop : Scf.Loop 32 :=
  let c0_i32_48 : BitVec 32 := 0#32
  let c200_i32 : BitVec 32 := 200#32
  let v68 : BitVec 32 := Scalar.addi c0_i32_48 c200_i32
  let c1_i32_49 : BitVec 32 := 1#32
  ⟨c0_i32_48, v68, c1_i32_49⟩
def k12_off3 (k12_t2 : Fin k12_t2_loop.trips) : Fin 2 → Nat :=
  let c0_i32_55 : BitVec 32 := 0#32
  let v77 : Index := Scalar.indexCast c0_i32_55
  let c0_i32_48 : BitVec 32 := 0#32
  let c1_i32_49 : BitVec 32 := 1#32
  let arg13 : BitVec 32 := Scf.iv c0_i32_48 c1_i32_49 k12_t2
  let c16_i32 : BitVec 32 := 16#32
  let v76 : BitVec 32 := Scalar.muli arg13 c16_i32
  let v78 : Index := Scalar.indexCast v76
  ![0, v78.toNat]
def k12_off4 (k12_t2 : Fin k12_t2_loop.trips) : Fin 1 → Nat :=
  let c0_i32_57 : BitVec 32 := 0#32
  let c0_i32_48 : BitVec 32 := 0#32
  let c1_i32_49 : BitVec 32 := 1#32
  let arg13 : BitVec 32 := Scf.iv c0_i32_48 c1_i32_49 k12_t2
  let c16_i32_56 : BitVec 32 := 16#32
  let v80 : BitVec 32 := Scalar.muli arg13 c16_i32_56
  let v81 : BitVec 32 := Scalar.addi c0_i32_57 v80
  let v82 : Index := Scalar.indexCast v81
  ![v82.toNat]
def k12_off5 (i : grid12.Coords) (k12_t1 : Fin k12_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_21 : BitVec 32 := 0#32
  let c1_i32_22 : BitVec 32 := 1#32
  let arg12 : BitVec 32 := Scf.iv c0_i32_21 c1_i32_22 k12_t1
  let c2_i32_26 : BitVec 32 := 2#32
  let v41 : BitVec 32 := Scalar.muli arg12 c2_i32_26
  let c32_i32_51 : BitVec 32 := 32#32
  let v69 : BitVec 32 := Scalar.muli v41 c32_i32_51
  let v70 : BitVec 32 := Scalar.addi v1 v69
  let c3200_i32_52 : BitVec 32 := 3200#32
  let v71 : BitVec 32 := Scalar.muli v70 c3200_i32_52
  ![v71.toNat]
def k12_cond3 (i : grid12.Coords) (k12_t1 : Fin k12_t1_loop.trips) : BitVec 1 :=
  let c0_i32_21 : BitVec 32 := 0#32
  let c1_i32_22 : BitVec 32 := 1#32
  let arg12 : BitVec 32 := Scf.iv c0_i32_21 c1_i32_22 k12_t1
  let c2_i32_26 : BitVec 32 := 2#32
  let v41 : BitVec 32 := Scalar.muli arg12 c2_i32_26
  let c2_i32_30 : BitVec 32 := 2#32
  let v48 : BitVec 32 := Scalar.addi v41 c2_i32_30
  let c500_i32 : BitVec 32 := 500#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v2 : BitVec 32 := Scalar.subi c500_i32 v1
  let c32_i32 : BitVec 32 := 32#32
  let v3 : BitVec 32 := Scalar.addi v2 c32_i32
  let c1_i32 : BitVec 32 := 1#32
  let v4 : BitVec 32 := Scalar.subi v3 c1_i32
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c32_i32_0 : BitVec 32 := 32#32
  let c0_i32_2 : BitVec 32 := 0#32
  let v11 : BitVec 1 := Scalar.cmpi .sgt c32_i32_0 c0_i32_2
  let v12 : BitVec 32 := Scalar.extui v11
  let c0_i32_3 : BitVec 32 := 0#32
  let v13 : BitVec 1 := Scalar.cmpi .slt c32_i32_0 c0_i32_3
  let v14 : BitVec 32 := Scalar.extui v13
  let v15 : BitVec 32 := Scalar.subi v12 v14
  let v16 : BitVec 1 := Scalar.cmpi .ne v10 v15
  let v17 : BitVec 32 := Scalar.remsi v4 c32_i32_0
  let c0_i32_4 : BitVec 32 := 0#32
  let v18 : BitVec 1 := Scalar.cmpi .ne v17 c0_i32_4
  let v19 : BitVec 1 := Scalar.andi v16 v18
  let v5 : BitVec 32 := Scalar.divsi v4 c32_i32_0
  let c1_i32_5 : BitVec 32 := 1#32
  let v20 : BitVec 32 := Scalar.subi v5 c1_i32_5
  let v21 : BitVec 32 := Scalar.select v19 v20 v5
  let v49 : BitVec 1 := Scalar.cmpi .slt v48 v21
  let v50 : BitVec 32 := Scalar.extui v49
  let c0_i32_31 : BitVec 32 := 0#32
  let v51 : BitVec 1 := Scalar.cmpi .ne v50 c0_i32_31
  v51

def k12_off6 (i : grid12.Coords) (k12_t1 : Fin k12_t1_loop.trips) : Fin 2 → Nat :=
  let c12_i32_44 : BitVec 32 := 12#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_21 : BitVec 32 := 0#32
  let c1_i32_22 : BitVec 32 := 1#32
  let arg12 : BitVec 32 := Scf.iv c0_i32_21 c1_i32_22 k12_t1
  let c2_i32_26 : BitVec 32 := 2#32
  let v41 : BitVec 32 := Scalar.muli arg12 c2_i32_26
  let c2_i32_39 : BitVec 32 := 2#32
  let v64 : BitVec 32 := Scalar.addi v41 c2_i32_39
  let c32_i32_40 : BitVec 32 := 32#32
  let v65 : BitVec 32 := Scalar.muli v64 c32_i32_40
  let v66 : BitVec 32 := Scalar.addi v1 v65
  let c3200_i32_41 : BitVec 32 := 3200#32
  let v67 : BitVec 32 := Scalar.muli v66 c3200_i32_41
  ![12, v67.toNat]
def k12_cond4 (k12_t1 : Fin k12_t1_loop.trips) : BitVec 1 :=
  let c0_i32_21 : BitVec 32 := 0#32
  let c1_i32_22 : BitVec 32 := 1#32
  let arg12 : BitVec 32 := Scf.iv c0_i32_21 c1_i32_22 k12_t1
  let c2_i32_32 : BitVec 32 := 2#32
  let v52 : BitVec 32 := Scalar.muli arg12 c2_i32_32
  let c1_i32_33 : BitVec 32 := 1#32
  let v53 : BitVec 32 := Scalar.addi v52 c1_i32_33
  let c2_i32_34 : BitVec 32 := 2#32
  let v54 : BitVec 1 := Scalar.cmpi .sge v53 c2_i32_34
  let v55 : BitVec 32 := Scalar.extui v54
  let c0_i32_35 : BitVec 32 := 0#32
  let v56 : BitVec 1 := Scalar.cmpi .ne v55 c0_i32_35
  v56

def k12_off7 (i : grid12.Coords) (k12_t1 : Fin k12_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_21 : BitVec 32 := 0#32
  let c1_i32_22 : BitVec 32 := 1#32
  let arg12 : BitVec 32 := Scf.iv c0_i32_21 c1_i32_22 k12_t1
  let c2_i32_32 : BitVec 32 := 2#32
  let v52 : BitVec 32 := Scalar.muli arg12 c2_i32_32
  let c1_i32_33 : BitVec 32 := 1#32
  let v53 : BitVec 32 := Scalar.addi v52 c1_i32_33
  let c2_i32_39 : BitVec 32 := 2#32
  let v64 : BitVec 32 := Scalar.subi v53 c2_i32_39
  let c32_i32_40 : BitVec 32 := 32#32
  let v65 : BitVec 32 := Scalar.muli v64 c32_i32_40
  let v66 : BitVec 32 := Scalar.addi v1 v65
  let c3200_i32_41 : BitVec 32 := 3200#32
  let v67 : BitVec 32 := Scalar.muli v66 c3200_i32_41
  ![v67.toNat]
def k12_cond5 (i : grid12.Coords) (k12_t1 : Fin k12_t1_loop.trips) : BitVec 1 :=
  let c0_i32_21 : BitVec 32 := 0#32
  let c1_i32_22 : BitVec 32 := 1#32
  let arg12 : BitVec 32 := Scf.iv c0_i32_21 c1_i32_22 k12_t1
  let c2_i32_32 : BitVec 32 := 2#32
  let v52 : BitVec 32 := Scalar.muli arg12 c2_i32_32
  let c1_i32_33 : BitVec 32 := 1#32
  let v53 : BitVec 32 := Scalar.addi v52 c1_i32_33
  let c500_i32 : BitVec 32 := 500#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v2 : BitVec 32 := Scalar.subi c500_i32 v1
  let c32_i32 : BitVec 32 := 32#32
  let v3 : BitVec 32 := Scalar.addi v2 c32_i32
  let c1_i32 : BitVec 32 := 1#32
  let v4 : BitVec 32 := Scalar.subi v3 c1_i32
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c32_i32_0 : BitVec 32 := 32#32
  let c0_i32_2 : BitVec 32 := 0#32
  let v11 : BitVec 1 := Scalar.cmpi .sgt c32_i32_0 c0_i32_2
  let v12 : BitVec 32 := Scalar.extui v11
  let c0_i32_3 : BitVec 32 := 0#32
  let v13 : BitVec 1 := Scalar.cmpi .slt c32_i32_0 c0_i32_3
  let v14 : BitVec 32 := Scalar.extui v13
  let v15 : BitVec 32 := Scalar.subi v12 v14
  let v16 : BitVec 1 := Scalar.cmpi .ne v10 v15
  let v17 : BitVec 32 := Scalar.remsi v4 c32_i32_0
  let c0_i32_4 : BitVec 32 := 0#32
  let v18 : BitVec 1 := Scalar.cmpi .ne v17 c0_i32_4
  let v19 : BitVec 1 := Scalar.andi v16 v18
  let v5 : BitVec 32 := Scalar.divsi v4 c32_i32_0
  let c1_i32_5 : BitVec 32 := 1#32
  let v20 : BitVec 32 := Scalar.subi v5 c1_i32_5
  let v21 : BitVec 32 := Scalar.select v19 v20 v5
  let v57 : BitVec 1 := Scalar.cmpi .slt v53 v21
  let v58 : BitVec 32 := Scalar.extui v57
  let c0_i32_36 : BitVec 32 := 0#32
  let v59 : BitVec 1 := Scalar.cmpi .ne v58 c0_i32_36
  v59

@[reducible] def k12_t3_loop : Scf.Loop 32 :=
  let c0_i32_48 : BitVec 32 := 0#32
  let c200_i32 : BitVec 32 := 200#32
  let v68 : BitVec 32 := Scalar.addi c0_i32_48 c200_i32
  let c1_i32_49 : BitVec 32 := 1#32
  ⟨c0_i32_48, v68, c1_i32_49⟩
def k12_off8 (k12_t3 : Fin k12_t3_loop.trips) : Fin 2 → Nat :=
  let c0_i32_55 : BitVec 32 := 0#32
  let v77 : Index := Scalar.indexCast c0_i32_55
  let c0_i32_48 : BitVec 32 := 0#32
  let c1_i32_49 : BitVec 32 := 1#32
  let arg13 : BitVec 32 := Scf.iv c0_i32_48 c1_i32_49 k12_t3
  let c16_i32 : BitVec 32 := 16#32
  let v76 : BitVec 32 := Scalar.muli arg13 c16_i32
  let v78 : Index := Scalar.indexCast v76
  ![0, v78.toNat]
def k12_off9 (k12_t3 : Fin k12_t3_loop.trips) : Fin 1 → Nat :=
  let c0_i32_57 : BitVec 32 := 0#32
  let c0_i32_48 : BitVec 32 := 0#32
  let c1_i32_49 : BitVec 32 := 1#32
  let arg13 : BitVec 32 := Scf.iv c0_i32_48 c1_i32_49 k12_t3
  let c16_i32_56 : BitVec 32 := 16#32
  let v80 : BitVec 32 := Scalar.muli arg13 c16_i32_56
  let v81 : BitVec 32 := Scalar.addi c0_i32_57 v80
  let v82 : Index := Scalar.indexCast v81
  ![v82.toNat]
def k12_off10 (i : grid12.Coords) (k12_t1 : Fin k12_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_21 : BitVec 32 := 0#32
  let c1_i32_22 : BitVec 32 := 1#32
  let arg12 : BitVec 32 := Scf.iv c0_i32_21 c1_i32_22 k12_t1
  let c2_i32_32 : BitVec 32 := 2#32
  let v52 : BitVec 32 := Scalar.muli arg12 c2_i32_32
  let c1_i32_33 : BitVec 32 := 1#32
  let v53 : BitVec 32 := Scalar.addi v52 c1_i32_33
  let c32_i32_51 : BitVec 32 := 32#32
  let v69 : BitVec 32 := Scalar.muli v53 c32_i32_51
  let v70 : BitVec 32 := Scalar.addi v1 v69
  let c3200_i32_52 : BitVec 32 := 3200#32
  let v71 : BitVec 32 := Scalar.muli v70 c3200_i32_52
  ![v71.toNat]
def k12_cond6 (i : grid12.Coords) (k12_t1 : Fin k12_t1_loop.trips) : BitVec 1 :=
  let c0_i32_21 : BitVec 32 := 0#32
  let c1_i32_22 : BitVec 32 := 1#32
  let arg12 : BitVec 32 := Scf.iv c0_i32_21 c1_i32_22 k12_t1
  let c2_i32_32 : BitVec 32 := 2#32
  let v52 : BitVec 32 := Scalar.muli arg12 c2_i32_32
  let c1_i32_33 : BitVec 32 := 1#32
  let v53 : BitVec 32 := Scalar.addi v52 c1_i32_33
  let c2_i32_37 : BitVec 32 := 2#32
  let v60 : BitVec 32 := Scalar.addi v53 c2_i32_37
  let c500_i32 : BitVec 32 := 500#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v2 : BitVec 32 := Scalar.subi c500_i32 v1
  let c32_i32 : BitVec 32 := 32#32
  let v3 : BitVec 32 := Scalar.addi v2 c32_i32
  let c1_i32 : BitVec 32 := 1#32
  let v4 : BitVec 32 := Scalar.subi v3 c1_i32
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c32_i32_0 : BitVec 32 := 32#32
  let c0_i32_2 : BitVec 32 := 0#32
  let v11 : BitVec 1 := Scalar.cmpi .sgt c32_i32_0 c0_i32_2
  let v12 : BitVec 32 := Scalar.extui v11
  let c0_i32_3 : BitVec 32 := 0#32
  let v13 : BitVec 1 := Scalar.cmpi .slt c32_i32_0 c0_i32_3
  let v14 : BitVec 32 := Scalar.extui v13
  let v15 : BitVec 32 := Scalar.subi v12 v14
  let v16 : BitVec 1 := Scalar.cmpi .ne v10 v15
  let v17 : BitVec 32 := Scalar.remsi v4 c32_i32_0
  let c0_i32_4 : BitVec 32 := 0#32
  let v18 : BitVec 1 := Scalar.cmpi .ne v17 c0_i32_4
  let v19 : BitVec 1 := Scalar.andi v16 v18
  let v5 : BitVec 32 := Scalar.divsi v4 c32_i32_0
  let c1_i32_5 : BitVec 32 := 1#32
  let v20 : BitVec 32 := Scalar.subi v5 c1_i32_5
  let v21 : BitVec 32 := Scalar.select v19 v20 v5
  let v61 : BitVec 1 := Scalar.cmpi .slt v60 v21
  let v62 : BitVec 32 := Scalar.extui v61
  let c0_i32_38 : BitVec 32 := 0#32
  let v63 : BitVec 1 := Scalar.cmpi .ne v62 c0_i32_38
  v63

def k12_off11 (i : grid12.Coords) (k12_t1 : Fin k12_t1_loop.trips) : Fin 2 → Nat :=
  let c12_i32_44 : BitVec 32 := 12#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_21 : BitVec 32 := 0#32
  let c1_i32_22 : BitVec 32 := 1#32
  let arg12 : BitVec 32 := Scf.iv c0_i32_21 c1_i32_22 k12_t1
  let c2_i32_32 : BitVec 32 := 2#32
  let v52 : BitVec 32 := Scalar.muli arg12 c2_i32_32
  let c1_i32_33 : BitVec 32 := 1#32
  let v53 : BitVec 32 := Scalar.addi v52 c1_i32_33
  let c2_i32_39 : BitVec 32 := 2#32
  let v64 : BitVec 32 := Scalar.addi v53 c2_i32_39
  let c32_i32_40 : BitVec 32 := 32#32
  let v65 : BitVec 32 := Scalar.muli v64 c32_i32_40
  let v66 : BitVec 32 := Scalar.addi v1 v65
  let c3200_i32_41 : BitVec 32 := 3200#32
  let v67 : BitVec 32 := Scalar.muli v66 c3200_i32_41
  ![12, v67.toNat]
def k12_cond7 (i : grid12.Coords) : BitVec 1 :=
  let c500_i32 : BitVec 32 := 500#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v2 : BitVec 32 := Scalar.subi c500_i32 v1
  let c32_i32 : BitVec 32 := 32#32
  let v3 : BitVec 32 := Scalar.addi v2 c32_i32
  let c1_i32 : BitVec 32 := 1#32
  let v4 : BitVec 32 := Scalar.subi v3 c1_i32
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c32_i32_0 : BitVec 32 := 32#32
  let c0_i32_2 : BitVec 32 := 0#32
  let v11 : BitVec 1 := Scalar.cmpi .sgt c32_i32_0 c0_i32_2
  let v12 : BitVec 32 := Scalar.extui v11
  let c0_i32_3 : BitVec 32 := 0#32
  let v13 : BitVec 1 := Scalar.cmpi .slt c32_i32_0 c0_i32_3
  let v14 : BitVec 32 := Scalar.extui v13
  let v15 : BitVec 32 := Scalar.subi v12 v14
  let v16 : BitVec 1 := Scalar.cmpi .ne v10 v15
  let v17 : BitVec 32 := Scalar.remsi v4 c32_i32_0
  let c0_i32_4 : BitVec 32 := 0#32
  let v18 : BitVec 1 := Scalar.cmpi .ne v17 c0_i32_4
  let v19 : BitVec 1 := Scalar.andi v16 v18
  let v5 : BitVec 32 := Scalar.divsi v4 c32_i32_0
  let c1_i32_5 : BitVec 32 := 1#32
  let v20 : BitVec 32 := Scalar.subi v5 c1_i32_5
  let v21 : BitVec 32 := Scalar.select v19 v20 v5
  let c14_i32 : BitVec 32 := 14#32
  let v35 : BitVec 1 := Scalar.cmpi .sgt v21 c14_i32
  let v36 : BitVec 32 := Scalar.extui v35
  let c0_i32_24 : BitVec 32 := 0#32
  let v37 : BitVec 1 := Scalar.cmpi .ne v36 c0_i32_24
  v37

def k12_off12 (i : grid12.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c448_i32 : BitVec 32 := 448#32
  let v41 : BitVec 32 := Scalar.addi v1 c448_i32
  let c3200_i32_26 : BitVec 32 := 3200#32
  let v42 : BitVec 32 := Scalar.muli v41 c3200_i32_26
  ![v42.toNat]
def k12_cond8 (i : grid12.Coords) : BitVec 1 :=
  let c500_i32 : BitVec 32 := 500#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v2 : BitVec 32 := Scalar.subi c500_i32 v1
  let c32_i32 : BitVec 32 := 32#32
  let v3 : BitVec 32 := Scalar.addi v2 c32_i32
  let c1_i32 : BitVec 32 := 1#32
  let v4 : BitVec 32 := Scalar.subi v3 c1_i32
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c32_i32_0 : BitVec 32 := 32#32
  let c0_i32_2 : BitVec 32 := 0#32
  let v11 : BitVec 1 := Scalar.cmpi .sgt c32_i32_0 c0_i32_2
  let v12 : BitVec 32 := Scalar.extui v11
  let c0_i32_3 : BitVec 32 := 0#32
  let v13 : BitVec 1 := Scalar.cmpi .slt c32_i32_0 c0_i32_3
  let v14 : BitVec 32 := Scalar.extui v13
  let v15 : BitVec 32 := Scalar.subi v12 v14
  let v16 : BitVec 1 := Scalar.cmpi .ne v10 v15
  let v17 : BitVec 32 := Scalar.remsi v4 c32_i32_0
  let c0_i32_4 : BitVec 32 := 0#32
  let v18 : BitVec 1 := Scalar.cmpi .ne v17 c0_i32_4
  let v19 : BitVec 1 := Scalar.andi v16 v18
  let v5 : BitVec 32 := Scalar.divsi v4 c32_i32_0
  let c1_i32_5 : BitVec 32 := 1#32
  let v20 : BitVec 32 := Scalar.subi v5 c1_i32_5
  let v21 : BitVec 32 := Scalar.select v19 v20 v5
  let c15_i32 : BitVec 32 := 15#32
  let v38 : BitVec 1 := Scalar.cmpi .sgt v21 c15_i32
  let v39 : BitVec 32 := Scalar.extui v38
  let c0_i32_25 : BitVec 32 := 0#32
  let v40 : BitVec 1 := Scalar.cmpi .ne v39 c0_i32_25
  v40

def k12_off13 (i : grid12.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c480_i32 : BitVec 32 := 480#32
  let v41 : BitVec 32 := Scalar.addi v1 c480_i32
  let c3200_i32_26 : BitVec 32 := 3200#32
  let v42 : BitVec 32 := Scalar.muli v41 c3200_i32_26
  ![v42.toNat]
abbrev grid13 : Pipeline.Grid := ⟨2, ![2, 16], ![false, false]⟩

def k13_off1 (i : grid13.Coords) (c0_i32_6 : BitVec 32) : Fin 2 → Nat :=
  let c13_i32 : BitVec 32 := 13#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v22 : BitVec 32 := Scalar.addi v1 c0_i32_6
  let c3200_i32 : BitVec 32 := 3200#32
  let v23 : BitVec 32 := Scalar.muli v22 c3200_i32
  ![13, v23.toNat]
@[reducible] def k13_t1_loop : Scf.Loop 32 :=
  let c0_i32_21 : BitVec 32 := 0#32
  let c8_i32 : BitVec 32 := 8#32
  let v34 : BitVec 32 := Scalar.addi c0_i32_21 c8_i32
  let c1_i32_22 : BitVec 32 := 1#32
  ⟨c0_i32_21, v34, c1_i32_22⟩
def k13_cond1 (k13_t1 : Fin k13_t1_loop.trips) : BitVec 1 :=
  let c0_i32_21 : BitVec 32 := 0#32
  let c1_i32_22 : BitVec 32 := 1#32
  let arg12 : BitVec 32 := Scf.iv c0_i32_21 c1_i32_22 k13_t1
  let c2_i32_26 : BitVec 32 := 2#32
  let v41 : BitVec 32 := Scalar.muli arg12 c2_i32_26
  let c2_i32_27 : BitVec 32 := 2#32
  let v42 : BitVec 1 := Scalar.cmpi .sge v41 c2_i32_27
  let v43 : BitVec 32 := Scalar.extui v42
  let c0_i32_28 : BitVec 32 := 0#32
  let v44 : BitVec 1 := Scalar.cmpi .ne v43 c0_i32_28
  v44

def k13_off2 (i : grid13.Coords) (k13_t1 : Fin k13_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_21 : BitVec 32 := 0#32
  let c1_i32_22 : BitVec 32 := 1#32
  let arg12 : BitVec 32 := Scf.iv c0_i32_21 c1_i32_22 k13_t1
  let c2_i32_26 : BitVec 32 := 2#32
  let v41 : BitVec 32 := Scalar.muli arg12 c2_i32_26
  let c2_i32_39 : BitVec 32 := 2#32
  let v64 : BitVec 32 := Scalar.subi v41 c2_i32_39
  let c32_i32_40 : BitVec 32 := 32#32
  let v65 : BitVec 32 := Scalar.muli v64 c32_i32_40
  let v66 : BitVec 32 := Scalar.addi v1 v65
  let c3200_i32_41 : BitVec 32 := 3200#32
  let v67 : BitVec 32 := Scalar.muli v66 c3200_i32_41
  ![v67.toNat]
def k13_cond2 (i : grid13.Coords) (k13_t1 : Fin k13_t1_loop.trips) : BitVec 1 :=
  let c0_i32_21 : BitVec 32 := 0#32
  let c1_i32_22 : BitVec 32 := 1#32
  let arg12 : BitVec 32 := Scf.iv c0_i32_21 c1_i32_22 k13_t1
  let c2_i32_26 : BitVec 32 := 2#32
  let v41 : BitVec 32 := Scalar.muli arg12 c2_i32_26
  let c500_i32 : BitVec 32 := 500#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v2 : BitVec 32 := Scalar.subi c500_i32 v1
  let c32_i32 : BitVec 32 := 32#32
  let v3 : BitVec 32 := Scalar.addi v2 c32_i32
  let c1_i32 : BitVec 32 := 1#32
  let v4 : BitVec 32 := Scalar.subi v3 c1_i32
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c32_i32_0 : BitVec 32 := 32#32
  let c0_i32_2 : BitVec 32 := 0#32
  let v11 : BitVec 1 := Scalar.cmpi .sgt c32_i32_0 c0_i32_2
  let v12 : BitVec 32 := Scalar.extui v11
  let c0_i32_3 : BitVec 32 := 0#32
  let v13 : BitVec 1 := Scalar.cmpi .slt c32_i32_0 c0_i32_3
  let v14 : BitVec 32 := Scalar.extui v13
  let v15 : BitVec 32 := Scalar.subi v12 v14
  let v16 : BitVec 1 := Scalar.cmpi .ne v10 v15
  let v17 : BitVec 32 := Scalar.remsi v4 c32_i32_0
  let c0_i32_4 : BitVec 32 := 0#32
  let v18 : BitVec 1 := Scalar.cmpi .ne v17 c0_i32_4
  let v19 : BitVec 1 := Scalar.andi v16 v18
  let v5 : BitVec 32 := Scalar.divsi v4 c32_i32_0
  let c1_i32_5 : BitVec 32 := 1#32
  let v20 : BitVec 32 := Scalar.subi v5 c1_i32_5
  let v21 : BitVec 32 := Scalar.select v19 v20 v5
  let v45 : BitVec 1 := Scalar.cmpi .slt v41 v21
  let v46 : BitVec 32 := Scalar.extui v45
  let c0_i32_29 : BitVec 32 := 0#32
  let v47 : BitVec 1 := Scalar.cmpi .ne v46 c0_i32_29
  v47

@[reducible] def k13_t2_loop : Scf.Loop 32 :=
  let c0_i32_48 : BitVec 32 := 0#32
  let c200_i32 : BitVec 32 := 200#32
  let v68 : BitVec 32 := Scalar.addi c0_i32_48 c200_i32
  let c1_i32_49 : BitVec 32 := 1#32
  ⟨c0_i32_48, v68, c1_i32_49⟩
def k13_off3 (k13_t2 : Fin k13_t2_loop.trips) : Fin 2 → Nat :=
  let c0_i32_55 : BitVec 32 := 0#32
  let v77 : Index := Scalar.indexCast c0_i32_55
  let c0_i32_48 : BitVec 32 := 0#32
  let c1_i32_49 : BitVec 32 := 1#32
  let arg13 : BitVec 32 := Scf.iv c0_i32_48 c1_i32_49 k13_t2
  let c16_i32 : BitVec 32 := 16#32
  let v76 : BitVec 32 := Scalar.muli arg13 c16_i32
  let v78 : Index := Scalar.indexCast v76
  ![0, v78.toNat]
def k13_off4 (k13_t2 : Fin k13_t2_loop.trips) : Fin 1 → Nat :=
  let c0_i32_57 : BitVec 32 := 0#32
  let c0_i32_48 : BitVec 32 := 0#32
  let c1_i32_49 : BitVec 32 := 1#32
  let arg13 : BitVec 32 := Scf.iv c0_i32_48 c1_i32_49 k13_t2
  let c16_i32_56 : BitVec 32 := 16#32
  let v80 : BitVec 32 := Scalar.muli arg13 c16_i32_56
  let v81 : BitVec 32 := Scalar.addi c0_i32_57 v80
  let v82 : Index := Scalar.indexCast v81
  ![v82.toNat]
def k13_off5 (i : grid13.Coords) (k13_t1 : Fin k13_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_21 : BitVec 32 := 0#32
  let c1_i32_22 : BitVec 32 := 1#32
  let arg12 : BitVec 32 := Scf.iv c0_i32_21 c1_i32_22 k13_t1
  let c2_i32_26 : BitVec 32 := 2#32
  let v41 : BitVec 32 := Scalar.muli arg12 c2_i32_26
  let c32_i32_51 : BitVec 32 := 32#32
  let v69 : BitVec 32 := Scalar.muli v41 c32_i32_51
  let v70 : BitVec 32 := Scalar.addi v1 v69
  let c3200_i32_52 : BitVec 32 := 3200#32
  let v71 : BitVec 32 := Scalar.muli v70 c3200_i32_52
  ![v71.toNat]
def k13_cond3 (i : grid13.Coords) (k13_t1 : Fin k13_t1_loop.trips) : BitVec 1 :=
  let c0_i32_21 : BitVec 32 := 0#32
  let c1_i32_22 : BitVec 32 := 1#32
  let arg12 : BitVec 32 := Scf.iv c0_i32_21 c1_i32_22 k13_t1
  let c2_i32_26 : BitVec 32 := 2#32
  let v41 : BitVec 32 := Scalar.muli arg12 c2_i32_26
  let c2_i32_30 : BitVec 32 := 2#32
  let v48 : BitVec 32 := Scalar.addi v41 c2_i32_30
  let c500_i32 : BitVec 32 := 500#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v2 : BitVec 32 := Scalar.subi c500_i32 v1
  let c32_i32 : BitVec 32 := 32#32
  let v3 : BitVec 32 := Scalar.addi v2 c32_i32
  let c1_i32 : BitVec 32 := 1#32
  let v4 : BitVec 32 := Scalar.subi v3 c1_i32
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c32_i32_0 : BitVec 32 := 32#32
  let c0_i32_2 : BitVec 32 := 0#32
  let v11 : BitVec 1 := Scalar.cmpi .sgt c32_i32_0 c0_i32_2
  let v12 : BitVec 32 := Scalar.extui v11
  let c0_i32_3 : BitVec 32 := 0#32
  let v13 : BitVec 1 := Scalar.cmpi .slt c32_i32_0 c0_i32_3
  let v14 : BitVec 32 := Scalar.extui v13
  let v15 : BitVec 32 := Scalar.subi v12 v14
  let v16 : BitVec 1 := Scalar.cmpi .ne v10 v15
  let v17 : BitVec 32 := Scalar.remsi v4 c32_i32_0
  let c0_i32_4 : BitVec 32 := 0#32
  let v18 : BitVec 1 := Scalar.cmpi .ne v17 c0_i32_4
  let v19 : BitVec 1 := Scalar.andi v16 v18
  let v5 : BitVec 32 := Scalar.divsi v4 c32_i32_0
  let c1_i32_5 : BitVec 32 := 1#32
  let v20 : BitVec 32 := Scalar.subi v5 c1_i32_5
  let v21 : BitVec 32 := Scalar.select v19 v20 v5
  let v49 : BitVec 1 := Scalar.cmpi .slt v48 v21
  let v50 : BitVec 32 := Scalar.extui v49
  let c0_i32_31 : BitVec 32 := 0#32
  let v51 : BitVec 1 := Scalar.cmpi .ne v50 c0_i32_31
  v51

def k13_off6 (i : grid13.Coords) (k13_t1 : Fin k13_t1_loop.trips) : Fin 2 → Nat :=
  let c13_i32_44 : BitVec 32 := 13#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_21 : BitVec 32 := 0#32
  let c1_i32_22 : BitVec 32 := 1#32
  let arg12 : BitVec 32 := Scf.iv c0_i32_21 c1_i32_22 k13_t1
  let c2_i32_26 : BitVec 32 := 2#32
  let v41 : BitVec 32 := Scalar.muli arg12 c2_i32_26
  let c2_i32_39 : BitVec 32 := 2#32
  let v64 : BitVec 32 := Scalar.addi v41 c2_i32_39
  let c32_i32_40 : BitVec 32 := 32#32
  let v65 : BitVec 32 := Scalar.muli v64 c32_i32_40
  let v66 : BitVec 32 := Scalar.addi v1 v65
  let c3200_i32_41 : BitVec 32 := 3200#32
  let v67 : BitVec 32 := Scalar.muli v66 c3200_i32_41
  ![13, v67.toNat]
def k13_cond4 (k13_t1 : Fin k13_t1_loop.trips) : BitVec 1 :=
  let c0_i32_21 : BitVec 32 := 0#32
  let c1_i32_22 : BitVec 32 := 1#32
  let arg12 : BitVec 32 := Scf.iv c0_i32_21 c1_i32_22 k13_t1
  let c2_i32_32 : BitVec 32 := 2#32
  let v52 : BitVec 32 := Scalar.muli arg12 c2_i32_32
  let c1_i32_33 : BitVec 32 := 1#32
  let v53 : BitVec 32 := Scalar.addi v52 c1_i32_33
  let c2_i32_34 : BitVec 32 := 2#32
  let v54 : BitVec 1 := Scalar.cmpi .sge v53 c2_i32_34
  let v55 : BitVec 32 := Scalar.extui v54
  let c0_i32_35 : BitVec 32 := 0#32
  let v56 : BitVec 1 := Scalar.cmpi .ne v55 c0_i32_35
  v56

def k13_off7 (i : grid13.Coords) (k13_t1 : Fin k13_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_21 : BitVec 32 := 0#32
  let c1_i32_22 : BitVec 32 := 1#32
  let arg12 : BitVec 32 := Scf.iv c0_i32_21 c1_i32_22 k13_t1
  let c2_i32_32 : BitVec 32 := 2#32
  let v52 : BitVec 32 := Scalar.muli arg12 c2_i32_32
  let c1_i32_33 : BitVec 32 := 1#32
  let v53 : BitVec 32 := Scalar.addi v52 c1_i32_33
  let c2_i32_39 : BitVec 32 := 2#32
  let v64 : BitVec 32 := Scalar.subi v53 c2_i32_39
  let c32_i32_40 : BitVec 32 := 32#32
  let v65 : BitVec 32 := Scalar.muli v64 c32_i32_40
  let v66 : BitVec 32 := Scalar.addi v1 v65
  let c3200_i32_41 : BitVec 32 := 3200#32
  let v67 : BitVec 32 := Scalar.muli v66 c3200_i32_41
  ![v67.toNat]
def k13_cond5 (i : grid13.Coords) (k13_t1 : Fin k13_t1_loop.trips) : BitVec 1 :=
  let c0_i32_21 : BitVec 32 := 0#32
  let c1_i32_22 : BitVec 32 := 1#32
  let arg12 : BitVec 32 := Scf.iv c0_i32_21 c1_i32_22 k13_t1
  let c2_i32_32 : BitVec 32 := 2#32
  let v52 : BitVec 32 := Scalar.muli arg12 c2_i32_32
  let c1_i32_33 : BitVec 32 := 1#32
  let v53 : BitVec 32 := Scalar.addi v52 c1_i32_33
  let c500_i32 : BitVec 32 := 500#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v2 : BitVec 32 := Scalar.subi c500_i32 v1
  let c32_i32 : BitVec 32 := 32#32
  let v3 : BitVec 32 := Scalar.addi v2 c32_i32
  let c1_i32 : BitVec 32 := 1#32
  let v4 : BitVec 32 := Scalar.subi v3 c1_i32
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c32_i32_0 : BitVec 32 := 32#32
  let c0_i32_2 : BitVec 32 := 0#32
  let v11 : BitVec 1 := Scalar.cmpi .sgt c32_i32_0 c0_i32_2
  let v12 : BitVec 32 := Scalar.extui v11
  let c0_i32_3 : BitVec 32 := 0#32
  let v13 : BitVec 1 := Scalar.cmpi .slt c32_i32_0 c0_i32_3
  let v14 : BitVec 32 := Scalar.extui v13
  let v15 : BitVec 32 := Scalar.subi v12 v14
  let v16 : BitVec 1 := Scalar.cmpi .ne v10 v15
  let v17 : BitVec 32 := Scalar.remsi v4 c32_i32_0
  let c0_i32_4 : BitVec 32 := 0#32
  let v18 : BitVec 1 := Scalar.cmpi .ne v17 c0_i32_4
  let v19 : BitVec 1 := Scalar.andi v16 v18
  let v5 : BitVec 32 := Scalar.divsi v4 c32_i32_0
  let c1_i32_5 : BitVec 32 := 1#32
  let v20 : BitVec 32 := Scalar.subi v5 c1_i32_5
  let v21 : BitVec 32 := Scalar.select v19 v20 v5
  let v57 : BitVec 1 := Scalar.cmpi .slt v53 v21
  let v58 : BitVec 32 := Scalar.extui v57
  let c0_i32_36 : BitVec 32 := 0#32
  let v59 : BitVec 1 := Scalar.cmpi .ne v58 c0_i32_36
  v59

@[reducible] def k13_t3_loop : Scf.Loop 32 :=
  let c0_i32_48 : BitVec 32 := 0#32
  let c200_i32 : BitVec 32 := 200#32
  let v68 : BitVec 32 := Scalar.addi c0_i32_48 c200_i32
  let c1_i32_49 : BitVec 32 := 1#32
  ⟨c0_i32_48, v68, c1_i32_49⟩
def k13_off8 (k13_t3 : Fin k13_t3_loop.trips) : Fin 2 → Nat :=
  let c0_i32_55 : BitVec 32 := 0#32
  let v77 : Index := Scalar.indexCast c0_i32_55
  let c0_i32_48 : BitVec 32 := 0#32
  let c1_i32_49 : BitVec 32 := 1#32
  let arg13 : BitVec 32 := Scf.iv c0_i32_48 c1_i32_49 k13_t3
  let c16_i32 : BitVec 32 := 16#32
  let v76 : BitVec 32 := Scalar.muli arg13 c16_i32
  let v78 : Index := Scalar.indexCast v76
  ![0, v78.toNat]
def k13_off9 (k13_t3 : Fin k13_t3_loop.trips) : Fin 1 → Nat :=
  let c0_i32_57 : BitVec 32 := 0#32
  let c0_i32_48 : BitVec 32 := 0#32
  let c1_i32_49 : BitVec 32 := 1#32
  let arg13 : BitVec 32 := Scf.iv c0_i32_48 c1_i32_49 k13_t3
  let c16_i32_56 : BitVec 32 := 16#32
  let v80 : BitVec 32 := Scalar.muli arg13 c16_i32_56
  let v81 : BitVec 32 := Scalar.addi c0_i32_57 v80
  let v82 : Index := Scalar.indexCast v81
  ![v82.toNat]
def k13_off10 (i : grid13.Coords) (k13_t1 : Fin k13_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_21 : BitVec 32 := 0#32
  let c1_i32_22 : BitVec 32 := 1#32
  let arg12 : BitVec 32 := Scf.iv c0_i32_21 c1_i32_22 k13_t1
  let c2_i32_32 : BitVec 32 := 2#32
  let v52 : BitVec 32 := Scalar.muli arg12 c2_i32_32
  let c1_i32_33 : BitVec 32 := 1#32
  let v53 : BitVec 32 := Scalar.addi v52 c1_i32_33
  let c32_i32_51 : BitVec 32 := 32#32
  let v69 : BitVec 32 := Scalar.muli v53 c32_i32_51
  let v70 : BitVec 32 := Scalar.addi v1 v69
  let c3200_i32_52 : BitVec 32 := 3200#32
  let v71 : BitVec 32 := Scalar.muli v70 c3200_i32_52
  ![v71.toNat]
def k13_cond6 (i : grid13.Coords) (k13_t1 : Fin k13_t1_loop.trips) : BitVec 1 :=
  let c0_i32_21 : BitVec 32 := 0#32
  let c1_i32_22 : BitVec 32 := 1#32
  let arg12 : BitVec 32 := Scf.iv c0_i32_21 c1_i32_22 k13_t1
  let c2_i32_32 : BitVec 32 := 2#32
  let v52 : BitVec 32 := Scalar.muli arg12 c2_i32_32
  let c1_i32_33 : BitVec 32 := 1#32
  let v53 : BitVec 32 := Scalar.addi v52 c1_i32_33
  let c2_i32_37 : BitVec 32 := 2#32
  let v60 : BitVec 32 := Scalar.addi v53 c2_i32_37
  let c500_i32 : BitVec 32 := 500#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v2 : BitVec 32 := Scalar.subi c500_i32 v1
  let c32_i32 : BitVec 32 := 32#32
  let v3 : BitVec 32 := Scalar.addi v2 c32_i32
  let c1_i32 : BitVec 32 := 1#32
  let v4 : BitVec 32 := Scalar.subi v3 c1_i32
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c32_i32_0 : BitVec 32 := 32#32
  let c0_i32_2 : BitVec 32 := 0#32
  let v11 : BitVec 1 := Scalar.cmpi .sgt c32_i32_0 c0_i32_2
  let v12 : BitVec 32 := Scalar.extui v11
  let c0_i32_3 : BitVec 32 := 0#32
  let v13 : BitVec 1 := Scalar.cmpi .slt c32_i32_0 c0_i32_3
  let v14 : BitVec 32 := Scalar.extui v13
  let v15 : BitVec 32 := Scalar.subi v12 v14
  let v16 : BitVec 1 := Scalar.cmpi .ne v10 v15
  let v17 : BitVec 32 := Scalar.remsi v4 c32_i32_0
  let c0_i32_4 : BitVec 32 := 0#32
  let v18 : BitVec 1 := Scalar.cmpi .ne v17 c0_i32_4
  let v19 : BitVec 1 := Scalar.andi v16 v18
  let v5 : BitVec 32 := Scalar.divsi v4 c32_i32_0
  let c1_i32_5 : BitVec 32 := 1#32
  let v20 : BitVec 32 := Scalar.subi v5 c1_i32_5
  let v21 : BitVec 32 := Scalar.select v19 v20 v5
  let v61 : BitVec 1 := Scalar.cmpi .slt v60 v21
  let v62 : BitVec 32 := Scalar.extui v61
  let c0_i32_38 : BitVec 32 := 0#32
  let v63 : BitVec 1 := Scalar.cmpi .ne v62 c0_i32_38
  v63

def k13_off11 (i : grid13.Coords) (k13_t1 : Fin k13_t1_loop.trips) : Fin 2 → Nat :=
  let c13_i32_44 : BitVec 32 := 13#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_21 : BitVec 32 := 0#32
  let c1_i32_22 : BitVec 32 := 1#32
  let arg12 : BitVec 32 := Scf.iv c0_i32_21 c1_i32_22 k13_t1
  let c2_i32_32 : BitVec 32 := 2#32
  let v52 : BitVec 32 := Scalar.muli arg12 c2_i32_32
  let c1_i32_33 : BitVec 32 := 1#32
  let v53 : BitVec 32 := Scalar.addi v52 c1_i32_33
  let c2_i32_39 : BitVec 32 := 2#32
  let v64 : BitVec 32 := Scalar.addi v53 c2_i32_39
  let c32_i32_40 : BitVec 32 := 32#32
  let v65 : BitVec 32 := Scalar.muli v64 c32_i32_40
  let v66 : BitVec 32 := Scalar.addi v1 v65
  let c3200_i32_41 : BitVec 32 := 3200#32
  let v67 : BitVec 32 := Scalar.muli v66 c3200_i32_41
  ![13, v67.toNat]
def k13_cond7 (i : grid13.Coords) : BitVec 1 :=
  let c500_i32 : BitVec 32 := 500#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v2 : BitVec 32 := Scalar.subi c500_i32 v1
  let c32_i32 : BitVec 32 := 32#32
  let v3 : BitVec 32 := Scalar.addi v2 c32_i32
  let c1_i32 : BitVec 32 := 1#32
  let v4 : BitVec 32 := Scalar.subi v3 c1_i32
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c32_i32_0 : BitVec 32 := 32#32
  let c0_i32_2 : BitVec 32 := 0#32
  let v11 : BitVec 1 := Scalar.cmpi .sgt c32_i32_0 c0_i32_2
  let v12 : BitVec 32 := Scalar.extui v11
  let c0_i32_3 : BitVec 32 := 0#32
  let v13 : BitVec 1 := Scalar.cmpi .slt c32_i32_0 c0_i32_3
  let v14 : BitVec 32 := Scalar.extui v13
  let v15 : BitVec 32 := Scalar.subi v12 v14
  let v16 : BitVec 1 := Scalar.cmpi .ne v10 v15
  let v17 : BitVec 32 := Scalar.remsi v4 c32_i32_0
  let c0_i32_4 : BitVec 32 := 0#32
  let v18 : BitVec 1 := Scalar.cmpi .ne v17 c0_i32_4
  let v19 : BitVec 1 := Scalar.andi v16 v18
  let v5 : BitVec 32 := Scalar.divsi v4 c32_i32_0
  let c1_i32_5 : BitVec 32 := 1#32
  let v20 : BitVec 32 := Scalar.subi v5 c1_i32_5
  let v21 : BitVec 32 := Scalar.select v19 v20 v5
  let c14_i32 : BitVec 32 := 14#32
  let v35 : BitVec 1 := Scalar.cmpi .sgt v21 c14_i32
  let v36 : BitVec 32 := Scalar.extui v35
  let c0_i32_24 : BitVec 32 := 0#32
  let v37 : BitVec 1 := Scalar.cmpi .ne v36 c0_i32_24
  v37

def k13_off12 (i : grid13.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c448_i32 : BitVec 32 := 448#32
  let v41 : BitVec 32 := Scalar.addi v1 c448_i32
  let c3200_i32_26 : BitVec 32 := 3200#32
  let v42 : BitVec 32 := Scalar.muli v41 c3200_i32_26
  ![v42.toNat]
def k13_cond8 (i : grid13.Coords) : BitVec 1 :=
  let c500_i32 : BitVec 32 := 500#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v2 : BitVec 32 := Scalar.subi c500_i32 v1
  let c32_i32 : BitVec 32 := 32#32
  let v3 : BitVec 32 := Scalar.addi v2 c32_i32
  let c1_i32 : BitVec 32 := 1#32
  let v4 : BitVec 32 := Scalar.subi v3 c1_i32
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c32_i32_0 : BitVec 32 := 32#32
  let c0_i32_2 : BitVec 32 := 0#32
  let v11 : BitVec 1 := Scalar.cmpi .sgt c32_i32_0 c0_i32_2
  let v12 : BitVec 32 := Scalar.extui v11
  let c0_i32_3 : BitVec 32 := 0#32
  let v13 : BitVec 1 := Scalar.cmpi .slt c32_i32_0 c0_i32_3
  let v14 : BitVec 32 := Scalar.extui v13
  let v15 : BitVec 32 := Scalar.subi v12 v14
  let v16 : BitVec 1 := Scalar.cmpi .ne v10 v15
  let v17 : BitVec 32 := Scalar.remsi v4 c32_i32_0
  let c0_i32_4 : BitVec 32 := 0#32
  let v18 : BitVec 1 := Scalar.cmpi .ne v17 c0_i32_4
  let v19 : BitVec 1 := Scalar.andi v16 v18
  let v5 : BitVec 32 := Scalar.divsi v4 c32_i32_0
  let c1_i32_5 : BitVec 32 := 1#32
  let v20 : BitVec 32 := Scalar.subi v5 c1_i32_5
  let v21 : BitVec 32 := Scalar.select v19 v20 v5
  let c15_i32 : BitVec 32 := 15#32
  let v38 : BitVec 1 := Scalar.cmpi .sgt v21 c15_i32
  let v39 : BitVec 32 := Scalar.extui v38
  let c0_i32_25 : BitVec 32 := 0#32
  let v40 : BitVec 1 := Scalar.cmpi .ne v39 c0_i32_25
  v40

def k13_off13 (i : grid13.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c480_i32 : BitVec 32 := 480#32
  let v41 : BitVec 32 := Scalar.addi v1 c480_i32
  let c3200_i32_26 : BitVec 32 := 3200#32
  let v42 : BitVec 32 := Scalar.muli v41 c3200_i32_26
  ![v42.toNat]
abbrev grid14 : Pipeline.Grid := ⟨2, ![2, 16], ![false, false]⟩

def k14_off1 (i : grid14.Coords) (c0_i32_6 : BitVec 32) : Fin 2 → Nat :=
  let c14_i32 : BitVec 32 := 14#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v22 : BitVec 32 := Scalar.addi v1 c0_i32_6
  let c3200_i32 : BitVec 32 := 3200#32
  let v23 : BitVec 32 := Scalar.muli v22 c3200_i32
  ![14, v23.toNat]
@[reducible] def k14_t1_loop : Scf.Loop 32 :=
  let c0_i32_21 : BitVec 32 := 0#32
  let c8_i32 : BitVec 32 := 8#32
  let v34 : BitVec 32 := Scalar.addi c0_i32_21 c8_i32
  let c1_i32_22 : BitVec 32 := 1#32
  ⟨c0_i32_21, v34, c1_i32_22⟩
def k14_cond1 (k14_t1 : Fin k14_t1_loop.trips) : BitVec 1 :=
  let c0_i32_21 : BitVec 32 := 0#32
  let c1_i32_22 : BitVec 32 := 1#32
  let arg12 : BitVec 32 := Scf.iv c0_i32_21 c1_i32_22 k14_t1
  let c2_i32_27 : BitVec 32 := 2#32
  let v41 : BitVec 32 := Scalar.muli arg12 c2_i32_27
  let c2_i32_28 : BitVec 32 := 2#32
  let v42 : BitVec 1 := Scalar.cmpi .sge v41 c2_i32_28
  let v43 : BitVec 32 := Scalar.extui v42
  let c0_i32_29 : BitVec 32 := 0#32
  let v44 : BitVec 1 := Scalar.cmpi .ne v43 c0_i32_29
  v44

def k14_off2 (i : grid14.Coords) (k14_t1 : Fin k14_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_21 : BitVec 32 := 0#32
  let c1_i32_22 : BitVec 32 := 1#32
  let arg12 : BitVec 32 := Scf.iv c0_i32_21 c1_i32_22 k14_t1
  let c2_i32_27 : BitVec 32 := 2#32
  let v41 : BitVec 32 := Scalar.muli arg12 c2_i32_27
  let c2_i32_40 : BitVec 32 := 2#32
  let v64 : BitVec 32 := Scalar.subi v41 c2_i32_40
  let c32_i32_41 : BitVec 32 := 32#32
  let v65 : BitVec 32 := Scalar.muli v64 c32_i32_41
  let v66 : BitVec 32 := Scalar.addi v1 v65
  let c3200_i32_42 : BitVec 32 := 3200#32
  let v67 : BitVec 32 := Scalar.muli v66 c3200_i32_42
  ![v67.toNat]
def k14_cond2 (i : grid14.Coords) (k14_t1 : Fin k14_t1_loop.trips) : BitVec 1 :=
  let c0_i32_21 : BitVec 32 := 0#32
  let c1_i32_22 : BitVec 32 := 1#32
  let arg12 : BitVec 32 := Scf.iv c0_i32_21 c1_i32_22 k14_t1
  let c2_i32_27 : BitVec 32 := 2#32
  let v41 : BitVec 32 := Scalar.muli arg12 c2_i32_27
  let c500_i32 : BitVec 32 := 500#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v2 : BitVec 32 := Scalar.subi c500_i32 v1
  let c32_i32 : BitVec 32 := 32#32
  let v3 : BitVec 32 := Scalar.addi v2 c32_i32
  let c1_i32 : BitVec 32 := 1#32
  let v4 : BitVec 32 := Scalar.subi v3 c1_i32
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c32_i32_0 : BitVec 32 := 32#32
  let c0_i32_2 : BitVec 32 := 0#32
  let v11 : BitVec 1 := Scalar.cmpi .sgt c32_i32_0 c0_i32_2
  let v12 : BitVec 32 := Scalar.extui v11
  let c0_i32_3 : BitVec 32 := 0#32
  let v13 : BitVec 1 := Scalar.cmpi .slt c32_i32_0 c0_i32_3
  let v14 : BitVec 32 := Scalar.extui v13
  let v15 : BitVec 32 := Scalar.subi v12 v14
  let v16 : BitVec 1 := Scalar.cmpi .ne v10 v15
  let v17 : BitVec 32 := Scalar.remsi v4 c32_i32_0
  let c0_i32_4 : BitVec 32 := 0#32
  let v18 : BitVec 1 := Scalar.cmpi .ne v17 c0_i32_4
  let v19 : BitVec 1 := Scalar.andi v16 v18
  let v5 : BitVec 32 := Scalar.divsi v4 c32_i32_0
  let c1_i32_5 : BitVec 32 := 1#32
  let v20 : BitVec 32 := Scalar.subi v5 c1_i32_5
  let v21 : BitVec 32 := Scalar.select v19 v20 v5
  let v45 : BitVec 1 := Scalar.cmpi .slt v41 v21
  let v46 : BitVec 32 := Scalar.extui v45
  let c0_i32_30 : BitVec 32 := 0#32
  let v47 : BitVec 1 := Scalar.cmpi .ne v46 c0_i32_30
  v47

@[reducible] def k14_t2_loop : Scf.Loop 32 :=
  let c0_i32_49 : BitVec 32 := 0#32
  let c200_i32 : BitVec 32 := 200#32
  let v68 : BitVec 32 := Scalar.addi c0_i32_49 c200_i32
  let c1_i32_50 : BitVec 32 := 1#32
  ⟨c0_i32_49, v68, c1_i32_50⟩
def k14_off3 (k14_t2 : Fin k14_t2_loop.trips) : Fin 2 → Nat :=
  let c0_i32_56 : BitVec 32 := 0#32
  let v77 : Index := Scalar.indexCast c0_i32_56
  let c0_i32_49 : BitVec 32 := 0#32
  let c1_i32_50 : BitVec 32 := 1#32
  let arg13 : BitVec 32 := Scf.iv c0_i32_49 c1_i32_50 k14_t2
  let c16_i32 : BitVec 32 := 16#32
  let v76 : BitVec 32 := Scalar.muli arg13 c16_i32
  let v78 : Index := Scalar.indexCast v76
  ![0, v78.toNat]
def k14_off4 (k14_t2 : Fin k14_t2_loop.trips) : Fin 1 → Nat :=
  let c0_i32_58 : BitVec 32 := 0#32
  let c0_i32_49 : BitVec 32 := 0#32
  let c1_i32_50 : BitVec 32 := 1#32
  let arg13 : BitVec 32 := Scf.iv c0_i32_49 c1_i32_50 k14_t2
  let c16_i32_57 : BitVec 32 := 16#32
  let v80 : BitVec 32 := Scalar.muli arg13 c16_i32_57
  let v81 : BitVec 32 := Scalar.addi c0_i32_58 v80
  let v82 : Index := Scalar.indexCast v81
  ![v82.toNat]
def k14_off5 (i : grid14.Coords) (k14_t1 : Fin k14_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_21 : BitVec 32 := 0#32
  let c1_i32_22 : BitVec 32 := 1#32
  let arg12 : BitVec 32 := Scf.iv c0_i32_21 c1_i32_22 k14_t1
  let c2_i32_27 : BitVec 32 := 2#32
  let v41 : BitVec 32 := Scalar.muli arg12 c2_i32_27
  let c32_i32_52 : BitVec 32 := 32#32
  let v69 : BitVec 32 := Scalar.muli v41 c32_i32_52
  let v70 : BitVec 32 := Scalar.addi v1 v69
  let c3200_i32_53 : BitVec 32 := 3200#32
  let v71 : BitVec 32 := Scalar.muli v70 c3200_i32_53
  ![v71.toNat]
def k14_cond3 (i : grid14.Coords) (k14_t1 : Fin k14_t1_loop.trips) : BitVec 1 :=
  let c0_i32_21 : BitVec 32 := 0#32
  let c1_i32_22 : BitVec 32 := 1#32
  let arg12 : BitVec 32 := Scf.iv c0_i32_21 c1_i32_22 k14_t1
  let c2_i32_27 : BitVec 32 := 2#32
  let v41 : BitVec 32 := Scalar.muli arg12 c2_i32_27
  let c2_i32_31 : BitVec 32 := 2#32
  let v48 : BitVec 32 := Scalar.addi v41 c2_i32_31
  let c500_i32 : BitVec 32 := 500#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v2 : BitVec 32 := Scalar.subi c500_i32 v1
  let c32_i32 : BitVec 32 := 32#32
  let v3 : BitVec 32 := Scalar.addi v2 c32_i32
  let c1_i32 : BitVec 32 := 1#32
  let v4 : BitVec 32 := Scalar.subi v3 c1_i32
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c32_i32_0 : BitVec 32 := 32#32
  let c0_i32_2 : BitVec 32 := 0#32
  let v11 : BitVec 1 := Scalar.cmpi .sgt c32_i32_0 c0_i32_2
  let v12 : BitVec 32 := Scalar.extui v11
  let c0_i32_3 : BitVec 32 := 0#32
  let v13 : BitVec 1 := Scalar.cmpi .slt c32_i32_0 c0_i32_3
  let v14 : BitVec 32 := Scalar.extui v13
  let v15 : BitVec 32 := Scalar.subi v12 v14
  let v16 : BitVec 1 := Scalar.cmpi .ne v10 v15
  let v17 : BitVec 32 := Scalar.remsi v4 c32_i32_0
  let c0_i32_4 : BitVec 32 := 0#32
  let v18 : BitVec 1 := Scalar.cmpi .ne v17 c0_i32_4
  let v19 : BitVec 1 := Scalar.andi v16 v18
  let v5 : BitVec 32 := Scalar.divsi v4 c32_i32_0
  let c1_i32_5 : BitVec 32 := 1#32
  let v20 : BitVec 32 := Scalar.subi v5 c1_i32_5
  let v21 : BitVec 32 := Scalar.select v19 v20 v5
  let v49 : BitVec 1 := Scalar.cmpi .slt v48 v21
  let v50 : BitVec 32 := Scalar.extui v49
  let c0_i32_32 : BitVec 32 := 0#32
  let v51 : BitVec 1 := Scalar.cmpi .ne v50 c0_i32_32
  v51

def k14_off6 (i : grid14.Coords) (k14_t1 : Fin k14_t1_loop.trips) : Fin 2 → Nat :=
  let c14_i32_45 : BitVec 32 := 14#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_21 : BitVec 32 := 0#32
  let c1_i32_22 : BitVec 32 := 1#32
  let arg12 : BitVec 32 := Scf.iv c0_i32_21 c1_i32_22 k14_t1
  let c2_i32_27 : BitVec 32 := 2#32
  let v41 : BitVec 32 := Scalar.muli arg12 c2_i32_27
  let c2_i32_40 : BitVec 32 := 2#32
  let v64 : BitVec 32 := Scalar.addi v41 c2_i32_40
  let c32_i32_41 : BitVec 32 := 32#32
  let v65 : BitVec 32 := Scalar.muli v64 c32_i32_41
  let v66 : BitVec 32 := Scalar.addi v1 v65
  let c3200_i32_42 : BitVec 32 := 3200#32
  let v67 : BitVec 32 := Scalar.muli v66 c3200_i32_42
  ![14, v67.toNat]
def k14_cond4 (k14_t1 : Fin k14_t1_loop.trips) : BitVec 1 :=
  let c0_i32_21 : BitVec 32 := 0#32
  let c1_i32_22 : BitVec 32 := 1#32
  let arg12 : BitVec 32 := Scf.iv c0_i32_21 c1_i32_22 k14_t1
  let c2_i32_33 : BitVec 32 := 2#32
  let v52 : BitVec 32 := Scalar.muli arg12 c2_i32_33
  let c1_i32_34 : BitVec 32 := 1#32
  let v53 : BitVec 32 := Scalar.addi v52 c1_i32_34
  let c2_i32_35 : BitVec 32 := 2#32
  let v54 : BitVec 1 := Scalar.cmpi .sge v53 c2_i32_35
  let v55 : BitVec 32 := Scalar.extui v54
  let c0_i32_36 : BitVec 32 := 0#32
  let v56 : BitVec 1 := Scalar.cmpi .ne v55 c0_i32_36
  v56

def k14_off7 (i : grid14.Coords) (k14_t1 : Fin k14_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_21 : BitVec 32 := 0#32
  let c1_i32_22 : BitVec 32 := 1#32
  let arg12 : BitVec 32 := Scf.iv c0_i32_21 c1_i32_22 k14_t1
  let c2_i32_33 : BitVec 32 := 2#32
  let v52 : BitVec 32 := Scalar.muli arg12 c2_i32_33
  let c1_i32_34 : BitVec 32 := 1#32
  let v53 : BitVec 32 := Scalar.addi v52 c1_i32_34
  let c2_i32_40 : BitVec 32 := 2#32
  let v64 : BitVec 32 := Scalar.subi v53 c2_i32_40
  let c32_i32_41 : BitVec 32 := 32#32
  let v65 : BitVec 32 := Scalar.muli v64 c32_i32_41
  let v66 : BitVec 32 := Scalar.addi v1 v65
  let c3200_i32_42 : BitVec 32 := 3200#32
  let v67 : BitVec 32 := Scalar.muli v66 c3200_i32_42
  ![v67.toNat]
def k14_cond5 (i : grid14.Coords) (k14_t1 : Fin k14_t1_loop.trips) : BitVec 1 :=
  let c0_i32_21 : BitVec 32 := 0#32
  let c1_i32_22 : BitVec 32 := 1#32
  let arg12 : BitVec 32 := Scf.iv c0_i32_21 c1_i32_22 k14_t1
  let c2_i32_33 : BitVec 32 := 2#32
  let v52 : BitVec 32 := Scalar.muli arg12 c2_i32_33
  let c1_i32_34 : BitVec 32 := 1#32
  let v53 : BitVec 32 := Scalar.addi v52 c1_i32_34
  let c500_i32 : BitVec 32 := 500#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v2 : BitVec 32 := Scalar.subi c500_i32 v1
  let c32_i32 : BitVec 32 := 32#32
  let v3 : BitVec 32 := Scalar.addi v2 c32_i32
  let c1_i32 : BitVec 32 := 1#32
  let v4 : BitVec 32 := Scalar.subi v3 c1_i32
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c32_i32_0 : BitVec 32 := 32#32
  let c0_i32_2 : BitVec 32 := 0#32
  let v11 : BitVec 1 := Scalar.cmpi .sgt c32_i32_0 c0_i32_2
  let v12 : BitVec 32 := Scalar.extui v11
  let c0_i32_3 : BitVec 32 := 0#32
  let v13 : BitVec 1 := Scalar.cmpi .slt c32_i32_0 c0_i32_3
  let v14 : BitVec 32 := Scalar.extui v13
  let v15 : BitVec 32 := Scalar.subi v12 v14
  let v16 : BitVec 1 := Scalar.cmpi .ne v10 v15
  let v17 : BitVec 32 := Scalar.remsi v4 c32_i32_0
  let c0_i32_4 : BitVec 32 := 0#32
  let v18 : BitVec 1 := Scalar.cmpi .ne v17 c0_i32_4
  let v19 : BitVec 1 := Scalar.andi v16 v18
  let v5 : BitVec 32 := Scalar.divsi v4 c32_i32_0
  let c1_i32_5 : BitVec 32 := 1#32
  let v20 : BitVec 32 := Scalar.subi v5 c1_i32_5
  let v21 : BitVec 32 := Scalar.select v19 v20 v5
  let v57 : BitVec 1 := Scalar.cmpi .slt v53 v21
  let v58 : BitVec 32 := Scalar.extui v57
  let c0_i32_37 : BitVec 32 := 0#32
  let v59 : BitVec 1 := Scalar.cmpi .ne v58 c0_i32_37
  v59

@[reducible] def k14_t3_loop : Scf.Loop 32 :=
  let c0_i32_49 : BitVec 32 := 0#32
  let c200_i32 : BitVec 32 := 200#32
  let v68 : BitVec 32 := Scalar.addi c0_i32_49 c200_i32
  let c1_i32_50 : BitVec 32 := 1#32
  ⟨c0_i32_49, v68, c1_i32_50⟩
def k14_off8 (k14_t3 : Fin k14_t3_loop.trips) : Fin 2 → Nat :=
  let c0_i32_56 : BitVec 32 := 0#32
  let v77 : Index := Scalar.indexCast c0_i32_56
  let c0_i32_49 : BitVec 32 := 0#32
  let c1_i32_50 : BitVec 32 := 1#32
  let arg13 : BitVec 32 := Scf.iv c0_i32_49 c1_i32_50 k14_t3
  let c16_i32 : BitVec 32 := 16#32
  let v76 : BitVec 32 := Scalar.muli arg13 c16_i32
  let v78 : Index := Scalar.indexCast v76
  ![0, v78.toNat]
def k14_off9 (k14_t3 : Fin k14_t3_loop.trips) : Fin 1 → Nat :=
  let c0_i32_58 : BitVec 32 := 0#32
  let c0_i32_49 : BitVec 32 := 0#32
  let c1_i32_50 : BitVec 32 := 1#32
  let arg13 : BitVec 32 := Scf.iv c0_i32_49 c1_i32_50 k14_t3
  let c16_i32_57 : BitVec 32 := 16#32
  let v80 : BitVec 32 := Scalar.muli arg13 c16_i32_57
  let v81 : BitVec 32 := Scalar.addi c0_i32_58 v80
  let v82 : Index := Scalar.indexCast v81
  ![v82.toNat]
def k14_off10 (i : grid14.Coords) (k14_t1 : Fin k14_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_21 : BitVec 32 := 0#32
  let c1_i32_22 : BitVec 32 := 1#32
  let arg12 : BitVec 32 := Scf.iv c0_i32_21 c1_i32_22 k14_t1
  let c2_i32_33 : BitVec 32 := 2#32
  let v52 : BitVec 32 := Scalar.muli arg12 c2_i32_33
  let c1_i32_34 : BitVec 32 := 1#32
  let v53 : BitVec 32 := Scalar.addi v52 c1_i32_34
  let c32_i32_52 : BitVec 32 := 32#32
  let v69 : BitVec 32 := Scalar.muli v53 c32_i32_52
  let v70 : BitVec 32 := Scalar.addi v1 v69
  let c3200_i32_53 : BitVec 32 := 3200#32
  let v71 : BitVec 32 := Scalar.muli v70 c3200_i32_53
  ![v71.toNat]
def k14_cond6 (i : grid14.Coords) (k14_t1 : Fin k14_t1_loop.trips) : BitVec 1 :=
  let c0_i32_21 : BitVec 32 := 0#32
  let c1_i32_22 : BitVec 32 := 1#32
  let arg12 : BitVec 32 := Scf.iv c0_i32_21 c1_i32_22 k14_t1
  let c2_i32_33 : BitVec 32 := 2#32
  let v52 : BitVec 32 := Scalar.muli arg12 c2_i32_33
  let c1_i32_34 : BitVec 32 := 1#32
  let v53 : BitVec 32 := Scalar.addi v52 c1_i32_34
  let c2_i32_38 : BitVec 32 := 2#32
  let v60 : BitVec 32 := Scalar.addi v53 c2_i32_38
  let c500_i32 : BitVec 32 := 500#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v2 : BitVec 32 := Scalar.subi c500_i32 v1
  let c32_i32 : BitVec 32 := 32#32
  let v3 : BitVec 32 := Scalar.addi v2 c32_i32
  let c1_i32 : BitVec 32 := 1#32
  let v4 : BitVec 32 := Scalar.subi v3 c1_i32
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c32_i32_0 : BitVec 32 := 32#32
  let c0_i32_2 : BitVec 32 := 0#32
  let v11 : BitVec 1 := Scalar.cmpi .sgt c32_i32_0 c0_i32_2
  let v12 : BitVec 32 := Scalar.extui v11
  let c0_i32_3 : BitVec 32 := 0#32
  let v13 : BitVec 1 := Scalar.cmpi .slt c32_i32_0 c0_i32_3
  let v14 : BitVec 32 := Scalar.extui v13
  let v15 : BitVec 32 := Scalar.subi v12 v14
  let v16 : BitVec 1 := Scalar.cmpi .ne v10 v15
  let v17 : BitVec 32 := Scalar.remsi v4 c32_i32_0
  let c0_i32_4 : BitVec 32 := 0#32
  let v18 : BitVec 1 := Scalar.cmpi .ne v17 c0_i32_4
  let v19 : BitVec 1 := Scalar.andi v16 v18
  let v5 : BitVec 32 := Scalar.divsi v4 c32_i32_0
  let c1_i32_5 : BitVec 32 := 1#32
  let v20 : BitVec 32 := Scalar.subi v5 c1_i32_5
  let v21 : BitVec 32 := Scalar.select v19 v20 v5
  let v61 : BitVec 1 := Scalar.cmpi .slt v60 v21
  let v62 : BitVec 32 := Scalar.extui v61
  let c0_i32_39 : BitVec 32 := 0#32
  let v63 : BitVec 1 := Scalar.cmpi .ne v62 c0_i32_39
  v63

def k14_off11 (i : grid14.Coords) (k14_t1 : Fin k14_t1_loop.trips) : Fin 2 → Nat :=
  let c14_i32_45 : BitVec 32 := 14#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_21 : BitVec 32 := 0#32
  let c1_i32_22 : BitVec 32 := 1#32
  let arg12 : BitVec 32 := Scf.iv c0_i32_21 c1_i32_22 k14_t1
  let c2_i32_33 : BitVec 32 := 2#32
  let v52 : BitVec 32 := Scalar.muli arg12 c2_i32_33
  let c1_i32_34 : BitVec 32 := 1#32
  let v53 : BitVec 32 := Scalar.addi v52 c1_i32_34
  let c2_i32_40 : BitVec 32 := 2#32
  let v64 : BitVec 32 := Scalar.addi v53 c2_i32_40
  let c32_i32_41 : BitVec 32 := 32#32
  let v65 : BitVec 32 := Scalar.muli v64 c32_i32_41
  let v66 : BitVec 32 := Scalar.addi v1 v65
  let c3200_i32_42 : BitVec 32 := 3200#32
  let v67 : BitVec 32 := Scalar.muli v66 c3200_i32_42
  ![14, v67.toNat]
def k14_cond7 (i : grid14.Coords) : BitVec 1 :=
  let c500_i32 : BitVec 32 := 500#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v2 : BitVec 32 := Scalar.subi c500_i32 v1
  let c32_i32 : BitVec 32 := 32#32
  let v3 : BitVec 32 := Scalar.addi v2 c32_i32
  let c1_i32 : BitVec 32 := 1#32
  let v4 : BitVec 32 := Scalar.subi v3 c1_i32
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c32_i32_0 : BitVec 32 := 32#32
  let c0_i32_2 : BitVec 32 := 0#32
  let v11 : BitVec 1 := Scalar.cmpi .sgt c32_i32_0 c0_i32_2
  let v12 : BitVec 32 := Scalar.extui v11
  let c0_i32_3 : BitVec 32 := 0#32
  let v13 : BitVec 1 := Scalar.cmpi .slt c32_i32_0 c0_i32_3
  let v14 : BitVec 32 := Scalar.extui v13
  let v15 : BitVec 32 := Scalar.subi v12 v14
  let v16 : BitVec 1 := Scalar.cmpi .ne v10 v15
  let v17 : BitVec 32 := Scalar.remsi v4 c32_i32_0
  let c0_i32_4 : BitVec 32 := 0#32
  let v18 : BitVec 1 := Scalar.cmpi .ne v17 c0_i32_4
  let v19 : BitVec 1 := Scalar.andi v16 v18
  let v5 : BitVec 32 := Scalar.divsi v4 c32_i32_0
  let c1_i32_5 : BitVec 32 := 1#32
  let v20 : BitVec 32 := Scalar.subi v5 c1_i32_5
  let v21 : BitVec 32 := Scalar.select v19 v20 v5
  let c14_i32_24 : BitVec 32 := 14#32
  let v35 : BitVec 1 := Scalar.cmpi .sgt v21 c14_i32_24
  let v36 : BitVec 32 := Scalar.extui v35
  let c0_i32_25 : BitVec 32 := 0#32
  let v37 : BitVec 1 := Scalar.cmpi .ne v36 c0_i32_25
  v37

def k14_off12 (i : grid14.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c448_i32 : BitVec 32 := 448#32
  let v41 : BitVec 32 := Scalar.addi v1 c448_i32
  let c3200_i32_27 : BitVec 32 := 3200#32
  let v42 : BitVec 32 := Scalar.muli v41 c3200_i32_27
  ![v42.toNat]
def k14_cond8 (i : grid14.Coords) : BitVec 1 :=
  let c500_i32 : BitVec 32 := 500#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v2 : BitVec 32 := Scalar.subi c500_i32 v1
  let c32_i32 : BitVec 32 := 32#32
  let v3 : BitVec 32 := Scalar.addi v2 c32_i32
  let c1_i32 : BitVec 32 := 1#32
  let v4 : BitVec 32 := Scalar.subi v3 c1_i32
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c32_i32_0 : BitVec 32 := 32#32
  let c0_i32_2 : BitVec 32 := 0#32
  let v11 : BitVec 1 := Scalar.cmpi .sgt c32_i32_0 c0_i32_2
  let v12 : BitVec 32 := Scalar.extui v11
  let c0_i32_3 : BitVec 32 := 0#32
  let v13 : BitVec 1 := Scalar.cmpi .slt c32_i32_0 c0_i32_3
  let v14 : BitVec 32 := Scalar.extui v13
  let v15 : BitVec 32 := Scalar.subi v12 v14
  let v16 : BitVec 1 := Scalar.cmpi .ne v10 v15
  let v17 : BitVec 32 := Scalar.remsi v4 c32_i32_0
  let c0_i32_4 : BitVec 32 := 0#32
  let v18 : BitVec 1 := Scalar.cmpi .ne v17 c0_i32_4
  let v19 : BitVec 1 := Scalar.andi v16 v18
  let v5 : BitVec 32 := Scalar.divsi v4 c32_i32_0
  let c1_i32_5 : BitVec 32 := 1#32
  let v20 : BitVec 32 := Scalar.subi v5 c1_i32_5
  let v21 : BitVec 32 := Scalar.select v19 v20 v5
  let c15_i32 : BitVec 32 := 15#32
  let v38 : BitVec 1 := Scalar.cmpi .sgt v21 c15_i32
  let v39 : BitVec 32 := Scalar.extui v38
  let c0_i32_26 : BitVec 32 := 0#32
  let v40 : BitVec 1 := Scalar.cmpi .ne v39 c0_i32_26
  v40

def k14_off13 (i : grid14.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c480_i32 : BitVec 32 := 480#32
  let v41 : BitVec 32 := Scalar.addi v1 c480_i32
  let c3200_i32_27 : BitVec 32 := 3200#32
  let v42 : BitVec 32 := Scalar.muli v41 c3200_i32_27
  ![v42.toNat]
abbrev grid15 : Pipeline.Grid := ⟨2, ![2, 16], ![false, false]⟩

def k15_off1 (i : grid15.Coords) (c0_i32_6 : BitVec 32) : Fin 2 → Nat :=
  let c15_i32 : BitVec 32 := 15#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v22 : BitVec 32 := Scalar.addi v1 c0_i32_6
  let c3200_i32 : BitVec 32 := 3200#32
  let v23 : BitVec 32 := Scalar.muli v22 c3200_i32
  ![15, v23.toNat]
@[reducible] def k15_t1_loop : Scf.Loop 32 :=
  let c0_i32_21 : BitVec 32 := 0#32
  let c8_i32 : BitVec 32 := 8#32
  let v34 : BitVec 32 := Scalar.addi c0_i32_21 c8_i32
  let c1_i32_22 : BitVec 32 := 1#32
  ⟨c0_i32_21, v34, c1_i32_22⟩
def k15_cond1 (k15_t1 : Fin k15_t1_loop.trips) : BitVec 1 :=
  let c0_i32_21 : BitVec 32 := 0#32
  let c1_i32_22 : BitVec 32 := 1#32
  let arg12 : BitVec 32 := Scf.iv c0_i32_21 c1_i32_22 k15_t1
  let c2_i32_27 : BitVec 32 := 2#32
  let v41 : BitVec 32 := Scalar.muli arg12 c2_i32_27
  let c2_i32_28 : BitVec 32 := 2#32
  let v42 : BitVec 1 := Scalar.cmpi .sge v41 c2_i32_28
  let v43 : BitVec 32 := Scalar.extui v42
  let c0_i32_29 : BitVec 32 := 0#32
  let v44 : BitVec 1 := Scalar.cmpi .ne v43 c0_i32_29
  v44

def k15_off2 (i : grid15.Coords) (k15_t1 : Fin k15_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_21 : BitVec 32 := 0#32
  let c1_i32_22 : BitVec 32 := 1#32
  let arg12 : BitVec 32 := Scf.iv c0_i32_21 c1_i32_22 k15_t1
  let c2_i32_27 : BitVec 32 := 2#32
  let v41 : BitVec 32 := Scalar.muli arg12 c2_i32_27
  let c2_i32_40 : BitVec 32 := 2#32
  let v64 : BitVec 32 := Scalar.subi v41 c2_i32_40
  let c32_i32_41 : BitVec 32 := 32#32
  let v65 : BitVec 32 := Scalar.muli v64 c32_i32_41
  let v66 : BitVec 32 := Scalar.addi v1 v65
  let c3200_i32_42 : BitVec 32 := 3200#32
  let v67 : BitVec 32 := Scalar.muli v66 c3200_i32_42
  ![v67.toNat]
def k15_cond2 (i : grid15.Coords) (k15_t1 : Fin k15_t1_loop.trips) : BitVec 1 :=
  let c0_i32_21 : BitVec 32 := 0#32
  let c1_i32_22 : BitVec 32 := 1#32
  let arg12 : BitVec 32 := Scf.iv c0_i32_21 c1_i32_22 k15_t1
  let c2_i32_27 : BitVec 32 := 2#32
  let v41 : BitVec 32 := Scalar.muli arg12 c2_i32_27
  let c500_i32 : BitVec 32 := 500#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v2 : BitVec 32 := Scalar.subi c500_i32 v1
  let c32_i32 : BitVec 32 := 32#32
  let v3 : BitVec 32 := Scalar.addi v2 c32_i32
  let c1_i32 : BitVec 32 := 1#32
  let v4 : BitVec 32 := Scalar.subi v3 c1_i32
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c32_i32_0 : BitVec 32 := 32#32
  let c0_i32_2 : BitVec 32 := 0#32
  let v11 : BitVec 1 := Scalar.cmpi .sgt c32_i32_0 c0_i32_2
  let v12 : BitVec 32 := Scalar.extui v11
  let c0_i32_3 : BitVec 32 := 0#32
  let v13 : BitVec 1 := Scalar.cmpi .slt c32_i32_0 c0_i32_3
  let v14 : BitVec 32 := Scalar.extui v13
  let v15 : BitVec 32 := Scalar.subi v12 v14
  let v16 : BitVec 1 := Scalar.cmpi .ne v10 v15
  let v17 : BitVec 32 := Scalar.remsi v4 c32_i32_0
  let c0_i32_4 : BitVec 32 := 0#32
  let v18 : BitVec 1 := Scalar.cmpi .ne v17 c0_i32_4
  let v19 : BitVec 1 := Scalar.andi v16 v18
  let v5 : BitVec 32 := Scalar.divsi v4 c32_i32_0
  let c1_i32_5 : BitVec 32 := 1#32
  let v20 : BitVec 32 := Scalar.subi v5 c1_i32_5
  let v21 : BitVec 32 := Scalar.select v19 v20 v5
  let v45 : BitVec 1 := Scalar.cmpi .slt v41 v21
  let v46 : BitVec 32 := Scalar.extui v45
  let c0_i32_30 : BitVec 32 := 0#32
  let v47 : BitVec 1 := Scalar.cmpi .ne v46 c0_i32_30
  v47

@[reducible] def k15_t2_loop : Scf.Loop 32 :=
  let c0_i32_49 : BitVec 32 := 0#32
  let c200_i32 : BitVec 32 := 200#32
  let v68 : BitVec 32 := Scalar.addi c0_i32_49 c200_i32
  let c1_i32_50 : BitVec 32 := 1#32
  ⟨c0_i32_49, v68, c1_i32_50⟩
def k15_off3 (k15_t2 : Fin k15_t2_loop.trips) : Fin 2 → Nat :=
  let c0_i32_56 : BitVec 32 := 0#32
  let v77 : Index := Scalar.indexCast c0_i32_56
  let c0_i32_49 : BitVec 32 := 0#32
  let c1_i32_50 : BitVec 32 := 1#32
  let arg13 : BitVec 32 := Scf.iv c0_i32_49 c1_i32_50 k15_t2
  let c16_i32 : BitVec 32 := 16#32
  let v76 : BitVec 32 := Scalar.muli arg13 c16_i32
  let v78 : Index := Scalar.indexCast v76
  ![0, v78.toNat]
def k15_off4 (k15_t2 : Fin k15_t2_loop.trips) : Fin 1 → Nat :=
  let c0_i32_58 : BitVec 32 := 0#32
  let c0_i32_49 : BitVec 32 := 0#32
  let c1_i32_50 : BitVec 32 := 1#32
  let arg13 : BitVec 32 := Scf.iv c0_i32_49 c1_i32_50 k15_t2
  let c16_i32_57 : BitVec 32 := 16#32
  let v80 : BitVec 32 := Scalar.muli arg13 c16_i32_57
  let v81 : BitVec 32 := Scalar.addi c0_i32_58 v80
  let v82 : Index := Scalar.indexCast v81
  ![v82.toNat]
def k15_off5 (i : grid15.Coords) (k15_t1 : Fin k15_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_21 : BitVec 32 := 0#32
  let c1_i32_22 : BitVec 32 := 1#32
  let arg12 : BitVec 32 := Scf.iv c0_i32_21 c1_i32_22 k15_t1
  let c2_i32_27 : BitVec 32 := 2#32
  let v41 : BitVec 32 := Scalar.muli arg12 c2_i32_27
  let c32_i32_52 : BitVec 32 := 32#32
  let v69 : BitVec 32 := Scalar.muli v41 c32_i32_52
  let v70 : BitVec 32 := Scalar.addi v1 v69
  let c3200_i32_53 : BitVec 32 := 3200#32
  let v71 : BitVec 32 := Scalar.muli v70 c3200_i32_53
  ![v71.toNat]
def k15_cond3 (i : grid15.Coords) (k15_t1 : Fin k15_t1_loop.trips) : BitVec 1 :=
  let c0_i32_21 : BitVec 32 := 0#32
  let c1_i32_22 : BitVec 32 := 1#32
  let arg12 : BitVec 32 := Scf.iv c0_i32_21 c1_i32_22 k15_t1
  let c2_i32_27 : BitVec 32 := 2#32
  let v41 : BitVec 32 := Scalar.muli arg12 c2_i32_27
  let c2_i32_31 : BitVec 32 := 2#32
  let v48 : BitVec 32 := Scalar.addi v41 c2_i32_31
  let c500_i32 : BitVec 32 := 500#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v2 : BitVec 32 := Scalar.subi c500_i32 v1
  let c32_i32 : BitVec 32 := 32#32
  let v3 : BitVec 32 := Scalar.addi v2 c32_i32
  let c1_i32 : BitVec 32 := 1#32
  let v4 : BitVec 32 := Scalar.subi v3 c1_i32
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c32_i32_0 : BitVec 32 := 32#32
  let c0_i32_2 : BitVec 32 := 0#32
  let v11 : BitVec 1 := Scalar.cmpi .sgt c32_i32_0 c0_i32_2
  let v12 : BitVec 32 := Scalar.extui v11
  let c0_i32_3 : BitVec 32 := 0#32
  let v13 : BitVec 1 := Scalar.cmpi .slt c32_i32_0 c0_i32_3
  let v14 : BitVec 32 := Scalar.extui v13
  let v15 : BitVec 32 := Scalar.subi v12 v14
  let v16 : BitVec 1 := Scalar.cmpi .ne v10 v15
  let v17 : BitVec 32 := Scalar.remsi v4 c32_i32_0
  let c0_i32_4 : BitVec 32 := 0#32
  let v18 : BitVec 1 := Scalar.cmpi .ne v17 c0_i32_4
  let v19 : BitVec 1 := Scalar.andi v16 v18
  let v5 : BitVec 32 := Scalar.divsi v4 c32_i32_0
  let c1_i32_5 : BitVec 32 := 1#32
  let v20 : BitVec 32 := Scalar.subi v5 c1_i32_5
  let v21 : BitVec 32 := Scalar.select v19 v20 v5
  let v49 : BitVec 1 := Scalar.cmpi .slt v48 v21
  let v50 : BitVec 32 := Scalar.extui v49
  let c0_i32_32 : BitVec 32 := 0#32
  let v51 : BitVec 1 := Scalar.cmpi .ne v50 c0_i32_32
  v51

def k15_off6 (i : grid15.Coords) (k15_t1 : Fin k15_t1_loop.trips) : Fin 2 → Nat :=
  let c15_i32_45 : BitVec 32 := 15#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_21 : BitVec 32 := 0#32
  let c1_i32_22 : BitVec 32 := 1#32
  let arg12 : BitVec 32 := Scf.iv c0_i32_21 c1_i32_22 k15_t1
  let c2_i32_27 : BitVec 32 := 2#32
  let v41 : BitVec 32 := Scalar.muli arg12 c2_i32_27
  let c2_i32_40 : BitVec 32 := 2#32
  let v64 : BitVec 32 := Scalar.addi v41 c2_i32_40
  let c32_i32_41 : BitVec 32 := 32#32
  let v65 : BitVec 32 := Scalar.muli v64 c32_i32_41
  let v66 : BitVec 32 := Scalar.addi v1 v65
  let c3200_i32_42 : BitVec 32 := 3200#32
  let v67 : BitVec 32 := Scalar.muli v66 c3200_i32_42
  ![15, v67.toNat]
def k15_cond4 (k15_t1 : Fin k15_t1_loop.trips) : BitVec 1 :=
  let c0_i32_21 : BitVec 32 := 0#32
  let c1_i32_22 : BitVec 32 := 1#32
  let arg12 : BitVec 32 := Scf.iv c0_i32_21 c1_i32_22 k15_t1
  let c2_i32_33 : BitVec 32 := 2#32
  let v52 : BitVec 32 := Scalar.muli arg12 c2_i32_33
  let c1_i32_34 : BitVec 32 := 1#32
  let v53 : BitVec 32 := Scalar.addi v52 c1_i32_34
  let c2_i32_35 : BitVec 32 := 2#32
  let v54 : BitVec 1 := Scalar.cmpi .sge v53 c2_i32_35
  let v55 : BitVec 32 := Scalar.extui v54
  let c0_i32_36 : BitVec 32 := 0#32
  let v56 : BitVec 1 := Scalar.cmpi .ne v55 c0_i32_36
  v56

def k15_off7 (i : grid15.Coords) (k15_t1 : Fin k15_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_21 : BitVec 32 := 0#32
  let c1_i32_22 : BitVec 32 := 1#32
  let arg12 : BitVec 32 := Scf.iv c0_i32_21 c1_i32_22 k15_t1
  let c2_i32_33 : BitVec 32 := 2#32
  let v52 : BitVec 32 := Scalar.muli arg12 c2_i32_33
  let c1_i32_34 : BitVec 32 := 1#32
  let v53 : BitVec 32 := Scalar.addi v52 c1_i32_34
  let c2_i32_40 : BitVec 32 := 2#32
  let v64 : BitVec 32 := Scalar.subi v53 c2_i32_40
  let c32_i32_41 : BitVec 32 := 32#32
  let v65 : BitVec 32 := Scalar.muli v64 c32_i32_41
  let v66 : BitVec 32 := Scalar.addi v1 v65
  let c3200_i32_42 : BitVec 32 := 3200#32
  let v67 : BitVec 32 := Scalar.muli v66 c3200_i32_42
  ![v67.toNat]
def k15_cond5 (i : grid15.Coords) (k15_t1 : Fin k15_t1_loop.trips) : BitVec 1 :=
  let c0_i32_21 : BitVec 32 := 0#32
  let c1_i32_22 : BitVec 32 := 1#32
  let arg12 : BitVec 32 := Scf.iv c0_i32_21 c1_i32_22 k15_t1
  let c2_i32_33 : BitVec 32 := 2#32
  let v52 : BitVec 32 := Scalar.muli arg12 c2_i32_33
  let c1_i32_34 : BitVec 32 := 1#32
  let v53 : BitVec 32 := Scalar.addi v52 c1_i32_34
  let c500_i32 : BitVec 32 := 500#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v2 : BitVec 32 := Scalar.subi c500_i32 v1
  let c32_i32 : BitVec 32 := 32#32
  let v3 : BitVec 32 := Scalar.addi v2 c32_i32
  let c1_i32 : BitVec 32 := 1#32
  let v4 : BitVec 32 := Scalar.subi v3 c1_i32
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c32_i32_0 : BitVec 32 := 32#32
  let c0_i32_2 : BitVec 32 := 0#32
  let v11 : BitVec 1 := Scalar.cmpi .sgt c32_i32_0 c0_i32_2
  let v12 : BitVec 32 := Scalar.extui v11
  let c0_i32_3 : BitVec 32 := 0#32
  let v13 : BitVec 1 := Scalar.cmpi .slt c32_i32_0 c0_i32_3
  let v14 : BitVec 32 := Scalar.extui v13
  let v15 : BitVec 32 := Scalar.subi v12 v14
  let v16 : BitVec 1 := Scalar.cmpi .ne v10 v15
  let v17 : BitVec 32 := Scalar.remsi v4 c32_i32_0
  let c0_i32_4 : BitVec 32 := 0#32
  let v18 : BitVec 1 := Scalar.cmpi .ne v17 c0_i32_4
  let v19 : BitVec 1 := Scalar.andi v16 v18
  let v5 : BitVec 32 := Scalar.divsi v4 c32_i32_0
  let c1_i32_5 : BitVec 32 := 1#32
  let v20 : BitVec 32 := Scalar.subi v5 c1_i32_5
  let v21 : BitVec 32 := Scalar.select v19 v20 v5
  let v57 : BitVec 1 := Scalar.cmpi .slt v53 v21
  let v58 : BitVec 32 := Scalar.extui v57
  let c0_i32_37 : BitVec 32 := 0#32
  let v59 : BitVec 1 := Scalar.cmpi .ne v58 c0_i32_37
  v59

@[reducible] def k15_t3_loop : Scf.Loop 32 :=
  let c0_i32_49 : BitVec 32 := 0#32
  let c200_i32 : BitVec 32 := 200#32
  let v68 : BitVec 32 := Scalar.addi c0_i32_49 c200_i32
  let c1_i32_50 : BitVec 32 := 1#32
  ⟨c0_i32_49, v68, c1_i32_50⟩
def k15_off8 (k15_t3 : Fin k15_t3_loop.trips) : Fin 2 → Nat :=
  let c0_i32_56 : BitVec 32 := 0#32
  let v77 : Index := Scalar.indexCast c0_i32_56
  let c0_i32_49 : BitVec 32 := 0#32
  let c1_i32_50 : BitVec 32 := 1#32
  let arg13 : BitVec 32 := Scf.iv c0_i32_49 c1_i32_50 k15_t3
  let c16_i32 : BitVec 32 := 16#32
  let v76 : BitVec 32 := Scalar.muli arg13 c16_i32
  let v78 : Index := Scalar.indexCast v76
  ![0, v78.toNat]
def k15_off9 (k15_t3 : Fin k15_t3_loop.trips) : Fin 1 → Nat :=
  let c0_i32_58 : BitVec 32 := 0#32
  let c0_i32_49 : BitVec 32 := 0#32
  let c1_i32_50 : BitVec 32 := 1#32
  let arg13 : BitVec 32 := Scf.iv c0_i32_49 c1_i32_50 k15_t3
  let c16_i32_57 : BitVec 32 := 16#32
  let v80 : BitVec 32 := Scalar.muli arg13 c16_i32_57
  let v81 : BitVec 32 := Scalar.addi c0_i32_58 v80
  let v82 : Index := Scalar.indexCast v81
  ![v82.toNat]
def k15_off10 (i : grid15.Coords) (k15_t1 : Fin k15_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_21 : BitVec 32 := 0#32
  let c1_i32_22 : BitVec 32 := 1#32
  let arg12 : BitVec 32 := Scf.iv c0_i32_21 c1_i32_22 k15_t1
  let c2_i32_33 : BitVec 32 := 2#32
  let v52 : BitVec 32 := Scalar.muli arg12 c2_i32_33
  let c1_i32_34 : BitVec 32 := 1#32
  let v53 : BitVec 32 := Scalar.addi v52 c1_i32_34
  let c32_i32_52 : BitVec 32 := 32#32
  let v69 : BitVec 32 := Scalar.muli v53 c32_i32_52
  let v70 : BitVec 32 := Scalar.addi v1 v69
  let c3200_i32_53 : BitVec 32 := 3200#32
  let v71 : BitVec 32 := Scalar.muli v70 c3200_i32_53
  ![v71.toNat]
def k15_cond6 (i : grid15.Coords) (k15_t1 : Fin k15_t1_loop.trips) : BitVec 1 :=
  let c0_i32_21 : BitVec 32 := 0#32
  let c1_i32_22 : BitVec 32 := 1#32
  let arg12 : BitVec 32 := Scf.iv c0_i32_21 c1_i32_22 k15_t1
  let c2_i32_33 : BitVec 32 := 2#32
  let v52 : BitVec 32 := Scalar.muli arg12 c2_i32_33
  let c1_i32_34 : BitVec 32 := 1#32
  let v53 : BitVec 32 := Scalar.addi v52 c1_i32_34
  let c2_i32_38 : BitVec 32 := 2#32
  let v60 : BitVec 32 := Scalar.addi v53 c2_i32_38
  let c500_i32 : BitVec 32 := 500#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v2 : BitVec 32 := Scalar.subi c500_i32 v1
  let c32_i32 : BitVec 32 := 32#32
  let v3 : BitVec 32 := Scalar.addi v2 c32_i32
  let c1_i32 : BitVec 32 := 1#32
  let v4 : BitVec 32 := Scalar.subi v3 c1_i32
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c32_i32_0 : BitVec 32 := 32#32
  let c0_i32_2 : BitVec 32 := 0#32
  let v11 : BitVec 1 := Scalar.cmpi .sgt c32_i32_0 c0_i32_2
  let v12 : BitVec 32 := Scalar.extui v11
  let c0_i32_3 : BitVec 32 := 0#32
  let v13 : BitVec 1 := Scalar.cmpi .slt c32_i32_0 c0_i32_3
  let v14 : BitVec 32 := Scalar.extui v13
  let v15 : BitVec 32 := Scalar.subi v12 v14
  let v16 : BitVec 1 := Scalar.cmpi .ne v10 v15
  let v17 : BitVec 32 := Scalar.remsi v4 c32_i32_0
  let c0_i32_4 : BitVec 32 := 0#32
  let v18 : BitVec 1 := Scalar.cmpi .ne v17 c0_i32_4
  let v19 : BitVec 1 := Scalar.andi v16 v18
  let v5 : BitVec 32 := Scalar.divsi v4 c32_i32_0
  let c1_i32_5 : BitVec 32 := 1#32
  let v20 : BitVec 32 := Scalar.subi v5 c1_i32_5
  let v21 : BitVec 32 := Scalar.select v19 v20 v5
  let v61 : BitVec 1 := Scalar.cmpi .slt v60 v21
  let v62 : BitVec 32 := Scalar.extui v61
  let c0_i32_39 : BitVec 32 := 0#32
  let v63 : BitVec 1 := Scalar.cmpi .ne v62 c0_i32_39
  v63

def k15_off11 (i : grid15.Coords) (k15_t1 : Fin k15_t1_loop.trips) : Fin 2 → Nat :=
  let c15_i32_45 : BitVec 32 := 15#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_21 : BitVec 32 := 0#32
  let c1_i32_22 : BitVec 32 := 1#32
  let arg12 : BitVec 32 := Scf.iv c0_i32_21 c1_i32_22 k15_t1
  let c2_i32_33 : BitVec 32 := 2#32
  let v52 : BitVec 32 := Scalar.muli arg12 c2_i32_33
  let c1_i32_34 : BitVec 32 := 1#32
  let v53 : BitVec 32 := Scalar.addi v52 c1_i32_34
  let c2_i32_40 : BitVec 32 := 2#32
  let v64 : BitVec 32 := Scalar.addi v53 c2_i32_40
  let c32_i32_41 : BitVec 32 := 32#32
  let v65 : BitVec 32 := Scalar.muli v64 c32_i32_41
  let v66 : BitVec 32 := Scalar.addi v1 v65
  let c3200_i32_42 : BitVec 32 := 3200#32
  let v67 : BitVec 32 := Scalar.muli v66 c3200_i32_42
  ![15, v67.toNat]
def k15_cond7 (i : grid15.Coords) : BitVec 1 :=
  let c500_i32 : BitVec 32 := 500#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v2 : BitVec 32 := Scalar.subi c500_i32 v1
  let c32_i32 : BitVec 32 := 32#32
  let v3 : BitVec 32 := Scalar.addi v2 c32_i32
  let c1_i32 : BitVec 32 := 1#32
  let v4 : BitVec 32 := Scalar.subi v3 c1_i32
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c32_i32_0 : BitVec 32 := 32#32
  let c0_i32_2 : BitVec 32 := 0#32
  let v11 : BitVec 1 := Scalar.cmpi .sgt c32_i32_0 c0_i32_2
  let v12 : BitVec 32 := Scalar.extui v11
  let c0_i32_3 : BitVec 32 := 0#32
  let v13 : BitVec 1 := Scalar.cmpi .slt c32_i32_0 c0_i32_3
  let v14 : BitVec 32 := Scalar.extui v13
  let v15 : BitVec 32 := Scalar.subi v12 v14
  let v16 : BitVec 1 := Scalar.cmpi .ne v10 v15
  let v17 : BitVec 32 := Scalar.remsi v4 c32_i32_0
  let c0_i32_4 : BitVec 32 := 0#32
  let v18 : BitVec 1 := Scalar.cmpi .ne v17 c0_i32_4
  let v19 : BitVec 1 := Scalar.andi v16 v18
  let v5 : BitVec 32 := Scalar.divsi v4 c32_i32_0
  let c1_i32_5 : BitVec 32 := 1#32
  let v20 : BitVec 32 := Scalar.subi v5 c1_i32_5
  let v21 : BitVec 32 := Scalar.select v19 v20 v5
  let c14_i32 : BitVec 32 := 14#32
  let v35 : BitVec 1 := Scalar.cmpi .sgt v21 c14_i32
  let v36 : BitVec 32 := Scalar.extui v35
  let c0_i32_24 : BitVec 32 := 0#32
  let v37 : BitVec 1 := Scalar.cmpi .ne v36 c0_i32_24
  v37

def k15_off12 (i : grid15.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c448_i32 : BitVec 32 := 448#32
  let v41 : BitVec 32 := Scalar.addi v1 c448_i32
  let c3200_i32_27 : BitVec 32 := 3200#32
  let v42 : BitVec 32 := Scalar.muli v41 c3200_i32_27
  ![v42.toNat]
def k15_cond8 (i : grid15.Coords) : BitVec 1 :=
  let c500_i32 : BitVec 32 := 500#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v2 : BitVec 32 := Scalar.subi c500_i32 v1
  let c32_i32 : BitVec 32 := 32#32
  let v3 : BitVec 32 := Scalar.addi v2 c32_i32
  let c1_i32 : BitVec 32 := 1#32
  let v4 : BitVec 32 := Scalar.subi v3 c1_i32
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c32_i32_0 : BitVec 32 := 32#32
  let c0_i32_2 : BitVec 32 := 0#32
  let v11 : BitVec 1 := Scalar.cmpi .sgt c32_i32_0 c0_i32_2
  let v12 : BitVec 32 := Scalar.extui v11
  let c0_i32_3 : BitVec 32 := 0#32
  let v13 : BitVec 1 := Scalar.cmpi .slt c32_i32_0 c0_i32_3
  let v14 : BitVec 32 := Scalar.extui v13
  let v15 : BitVec 32 := Scalar.subi v12 v14
  let v16 : BitVec 1 := Scalar.cmpi .ne v10 v15
  let v17 : BitVec 32 := Scalar.remsi v4 c32_i32_0
  let c0_i32_4 : BitVec 32 := 0#32
  let v18 : BitVec 1 := Scalar.cmpi .ne v17 c0_i32_4
  let v19 : BitVec 1 := Scalar.andi v16 v18
  let v5 : BitVec 32 := Scalar.divsi v4 c32_i32_0
  let c1_i32_5 : BitVec 32 := 1#32
  let v20 : BitVec 32 := Scalar.subi v5 c1_i32_5
  let v21 : BitVec 32 := Scalar.select v19 v20 v5
  let c15_i32_25 : BitVec 32 := 15#32
  let v38 : BitVec 1 := Scalar.cmpi .sgt v21 c15_i32_25
  let v39 : BitVec 32 := Scalar.extui v38
  let c0_i32_26 : BitVec 32 := 0#32
  let v40 : BitVec 1 := Scalar.cmpi .ne v39 c0_i32_26
  v40

def k15_off13 (i : grid15.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c480_i32 : BitVec 32 := 480#32
  let v41 : BitVec 32 := Scalar.addi v1 c480_i32
  let c3200_i32_27 : BitVec 32 := 3200#32
  let v42 : BitVec 32 := Scalar.muli v41 c3200_i32_27
  ![v42.toNat]
abbrev grid16 : Pipeline.Grid := ⟨2, ![2, 16], ![false, false]⟩

def k16_off1 (i : grid16.Coords) (c0_i32_6 : BitVec 32) : Fin 2 → Nat :=
  let c16_i32 : BitVec 32 := 16#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v22 : BitVec 32 := Scalar.addi v1 c0_i32_6
  let c3200_i32 : BitVec 32 := 3200#32
  let v23 : BitVec 32 := Scalar.muli v22 c3200_i32
  ![16, v23.toNat]
@[reducible] def k16_t1_loop : Scf.Loop 32 :=
  let c0_i32_21 : BitVec 32 := 0#32
  let c8_i32 : BitVec 32 := 8#32
  let v34 : BitVec 32 := Scalar.addi c0_i32_21 c8_i32
  let c1_i32_22 : BitVec 32 := 1#32
  ⟨c0_i32_21, v34, c1_i32_22⟩
def k16_cond1 (k16_t1 : Fin k16_t1_loop.trips) : BitVec 1 :=
  let c0_i32_21 : BitVec 32 := 0#32
  let c1_i32_22 : BitVec 32 := 1#32
  let arg12 : BitVec 32 := Scf.iv c0_i32_21 c1_i32_22 k16_t1
  let c2_i32_26 : BitVec 32 := 2#32
  let v41 : BitVec 32 := Scalar.muli arg12 c2_i32_26
  let c2_i32_27 : BitVec 32 := 2#32
  let v42 : BitVec 1 := Scalar.cmpi .sge v41 c2_i32_27
  let v43 : BitVec 32 := Scalar.extui v42
  let c0_i32_28 : BitVec 32 := 0#32
  let v44 : BitVec 1 := Scalar.cmpi .ne v43 c0_i32_28
  v44

def k16_off2 (i : grid16.Coords) (k16_t1 : Fin k16_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_21 : BitVec 32 := 0#32
  let c1_i32_22 : BitVec 32 := 1#32
  let arg12 : BitVec 32 := Scf.iv c0_i32_21 c1_i32_22 k16_t1
  let c2_i32_26 : BitVec 32 := 2#32
  let v41 : BitVec 32 := Scalar.muli arg12 c2_i32_26
  let c2_i32_39 : BitVec 32 := 2#32
  let v64 : BitVec 32 := Scalar.subi v41 c2_i32_39
  let c32_i32_40 : BitVec 32 := 32#32
  let v65 : BitVec 32 := Scalar.muli v64 c32_i32_40
  let v66 : BitVec 32 := Scalar.addi v1 v65
  let c3200_i32_41 : BitVec 32 := 3200#32
  let v67 : BitVec 32 := Scalar.muli v66 c3200_i32_41
  ![v67.toNat]
def k16_cond2 (i : grid16.Coords) (k16_t1 : Fin k16_t1_loop.trips) : BitVec 1 :=
  let c0_i32_21 : BitVec 32 := 0#32
  let c1_i32_22 : BitVec 32 := 1#32
  let arg12 : BitVec 32 := Scf.iv c0_i32_21 c1_i32_22 k16_t1
  let c2_i32_26 : BitVec 32 := 2#32
  let v41 : BitVec 32 := Scalar.muli arg12 c2_i32_26
  let c500_i32 : BitVec 32 := 500#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v2 : BitVec 32 := Scalar.subi c500_i32 v1
  let c32_i32 : BitVec 32 := 32#32
  let v3 : BitVec 32 := Scalar.addi v2 c32_i32
  let c1_i32 : BitVec 32 := 1#32
  let v4 : BitVec 32 := Scalar.subi v3 c1_i32
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c32_i32_0 : BitVec 32 := 32#32
  let c0_i32_2 : BitVec 32 := 0#32
  let v11 : BitVec 1 := Scalar.cmpi .sgt c32_i32_0 c0_i32_2
  let v12 : BitVec 32 := Scalar.extui v11
  let c0_i32_3 : BitVec 32 := 0#32
  let v13 : BitVec 1 := Scalar.cmpi .slt c32_i32_0 c0_i32_3
  let v14 : BitVec 32 := Scalar.extui v13
  let v15 : BitVec 32 := Scalar.subi v12 v14
  let v16 : BitVec 1 := Scalar.cmpi .ne v10 v15
  let v17 : BitVec 32 := Scalar.remsi v4 c32_i32_0
  let c0_i32_4 : BitVec 32 := 0#32
  let v18 : BitVec 1 := Scalar.cmpi .ne v17 c0_i32_4
  let v19 : BitVec 1 := Scalar.andi v16 v18
  let v5 : BitVec 32 := Scalar.divsi v4 c32_i32_0
  let c1_i32_5 : BitVec 32 := 1#32
  let v20 : BitVec 32 := Scalar.subi v5 c1_i32_5
  let v21 : BitVec 32 := Scalar.select v19 v20 v5
  let v45 : BitVec 1 := Scalar.cmpi .slt v41 v21
  let v46 : BitVec 32 := Scalar.extui v45
  let c0_i32_29 : BitVec 32 := 0#32
  let v47 : BitVec 1 := Scalar.cmpi .ne v46 c0_i32_29
  v47

@[reducible] def k16_t2_loop : Scf.Loop 32 :=
  let c0_i32_48 : BitVec 32 := 0#32
  let c200_i32 : BitVec 32 := 200#32
  let v68 : BitVec 32 := Scalar.addi c0_i32_48 c200_i32
  let c1_i32_49 : BitVec 32 := 1#32
  ⟨c0_i32_48, v68, c1_i32_49⟩
def k16_off3 (k16_t2 : Fin k16_t2_loop.trips) : Fin 2 → Nat :=
  let c0_i32_56 : BitVec 32 := 0#32
  let v77 : Index := Scalar.indexCast c0_i32_56
  let c0_i32_48 : BitVec 32 := 0#32
  let c1_i32_49 : BitVec 32 := 1#32
  let arg13 : BitVec 32 := Scf.iv c0_i32_48 c1_i32_49 k16_t2
  let c16_i32_55 : BitVec 32 := 16#32
  let v76 : BitVec 32 := Scalar.muli arg13 c16_i32_55
  let v78 : Index := Scalar.indexCast v76
  ![0, v78.toNat]
def k16_off4 (k16_t2 : Fin k16_t2_loop.trips) : Fin 1 → Nat :=
  let c0_i32_58 : BitVec 32 := 0#32
  let c0_i32_48 : BitVec 32 := 0#32
  let c1_i32_49 : BitVec 32 := 1#32
  let arg13 : BitVec 32 := Scf.iv c0_i32_48 c1_i32_49 k16_t2
  let c16_i32_57 : BitVec 32 := 16#32
  let v80 : BitVec 32 := Scalar.muli arg13 c16_i32_57
  let v81 : BitVec 32 := Scalar.addi c0_i32_58 v80
  let v82 : Index := Scalar.indexCast v81
  ![v82.toNat]
def k16_off5 (i : grid16.Coords) (k16_t1 : Fin k16_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_21 : BitVec 32 := 0#32
  let c1_i32_22 : BitVec 32 := 1#32
  let arg12 : BitVec 32 := Scf.iv c0_i32_21 c1_i32_22 k16_t1
  let c2_i32_26 : BitVec 32 := 2#32
  let v41 : BitVec 32 := Scalar.muli arg12 c2_i32_26
  let c32_i32_51 : BitVec 32 := 32#32
  let v69 : BitVec 32 := Scalar.muli v41 c32_i32_51
  let v70 : BitVec 32 := Scalar.addi v1 v69
  let c3200_i32_52 : BitVec 32 := 3200#32
  let v71 : BitVec 32 := Scalar.muli v70 c3200_i32_52
  ![v71.toNat]
def k16_cond3 (i : grid16.Coords) (k16_t1 : Fin k16_t1_loop.trips) : BitVec 1 :=
  let c0_i32_21 : BitVec 32 := 0#32
  let c1_i32_22 : BitVec 32 := 1#32
  let arg12 : BitVec 32 := Scf.iv c0_i32_21 c1_i32_22 k16_t1
  let c2_i32_26 : BitVec 32 := 2#32
  let v41 : BitVec 32 := Scalar.muli arg12 c2_i32_26
  let c2_i32_30 : BitVec 32 := 2#32
  let v48 : BitVec 32 := Scalar.addi v41 c2_i32_30
  let c500_i32 : BitVec 32 := 500#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v2 : BitVec 32 := Scalar.subi c500_i32 v1
  let c32_i32 : BitVec 32 := 32#32
  let v3 : BitVec 32 := Scalar.addi v2 c32_i32
  let c1_i32 : BitVec 32 := 1#32
  let v4 : BitVec 32 := Scalar.subi v3 c1_i32
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c32_i32_0 : BitVec 32 := 32#32
  let c0_i32_2 : BitVec 32 := 0#32
  let v11 : BitVec 1 := Scalar.cmpi .sgt c32_i32_0 c0_i32_2
  let v12 : BitVec 32 := Scalar.extui v11
  let c0_i32_3 : BitVec 32 := 0#32
  let v13 : BitVec 1 := Scalar.cmpi .slt c32_i32_0 c0_i32_3
  let v14 : BitVec 32 := Scalar.extui v13
  let v15 : BitVec 32 := Scalar.subi v12 v14
  let v16 : BitVec 1 := Scalar.cmpi .ne v10 v15
  let v17 : BitVec 32 := Scalar.remsi v4 c32_i32_0
  let c0_i32_4 : BitVec 32 := 0#32
  let v18 : BitVec 1 := Scalar.cmpi .ne v17 c0_i32_4
  let v19 : BitVec 1 := Scalar.andi v16 v18
  let v5 : BitVec 32 := Scalar.divsi v4 c32_i32_0
  let c1_i32_5 : BitVec 32 := 1#32
  let v20 : BitVec 32 := Scalar.subi v5 c1_i32_5
  let v21 : BitVec 32 := Scalar.select v19 v20 v5
  let v49 : BitVec 1 := Scalar.cmpi .slt v48 v21
  let v50 : BitVec 32 := Scalar.extui v49
  let c0_i32_31 : BitVec 32 := 0#32
  let v51 : BitVec 1 := Scalar.cmpi .ne v50 c0_i32_31
  v51

def k16_off6 (i : grid16.Coords) (k16_t1 : Fin k16_t1_loop.trips) : Fin 2 → Nat :=
  let c16_i32_44 : BitVec 32 := 16#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_21 : BitVec 32 := 0#32
  let c1_i32_22 : BitVec 32 := 1#32
  let arg12 : BitVec 32 := Scf.iv c0_i32_21 c1_i32_22 k16_t1
  let c2_i32_26 : BitVec 32 := 2#32
  let v41 : BitVec 32 := Scalar.muli arg12 c2_i32_26
  let c2_i32_39 : BitVec 32 := 2#32
  let v64 : BitVec 32 := Scalar.addi v41 c2_i32_39
  let c32_i32_40 : BitVec 32 := 32#32
  let v65 : BitVec 32 := Scalar.muli v64 c32_i32_40
  let v66 : BitVec 32 := Scalar.addi v1 v65
  let c3200_i32_41 : BitVec 32 := 3200#32
  let v67 : BitVec 32 := Scalar.muli v66 c3200_i32_41
  ![16, v67.toNat]
def k16_cond4 (k16_t1 : Fin k16_t1_loop.trips) : BitVec 1 :=
  let c0_i32_21 : BitVec 32 := 0#32
  let c1_i32_22 : BitVec 32 := 1#32
  let arg12 : BitVec 32 := Scf.iv c0_i32_21 c1_i32_22 k16_t1
  let c2_i32_32 : BitVec 32 := 2#32
  let v52 : BitVec 32 := Scalar.muli arg12 c2_i32_32
  let c1_i32_33 : BitVec 32 := 1#32
  let v53 : BitVec 32 := Scalar.addi v52 c1_i32_33
  let c2_i32_34 : BitVec 32 := 2#32
  let v54 : BitVec 1 := Scalar.cmpi .sge v53 c2_i32_34
  let v55 : BitVec 32 := Scalar.extui v54
  let c0_i32_35 : BitVec 32 := 0#32
  let v56 : BitVec 1 := Scalar.cmpi .ne v55 c0_i32_35
  v56

def k16_off7 (i : grid16.Coords) (k16_t1 : Fin k16_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_21 : BitVec 32 := 0#32
  let c1_i32_22 : BitVec 32 := 1#32
  let arg12 : BitVec 32 := Scf.iv c0_i32_21 c1_i32_22 k16_t1
  let c2_i32_32 : BitVec 32 := 2#32
  let v52 : BitVec 32 := Scalar.muli arg12 c2_i32_32
  let c1_i32_33 : BitVec 32 := 1#32
  let v53 : BitVec 32 := Scalar.addi v52 c1_i32_33
  let c2_i32_39 : BitVec 32 := 2#32
  let v64 : BitVec 32 := Scalar.subi v53 c2_i32_39
  let c32_i32_40 : BitVec 32 := 32#32
  let v65 : BitVec 32 := Scalar.muli v64 c32_i32_40
  let v66 : BitVec 32 := Scalar.addi v1 v65
  let c3200_i32_41 : BitVec 32 := 3200#32
  let v67 : BitVec 32 := Scalar.muli v66 c3200_i32_41
  ![v67.toNat]
def k16_cond5 (i : grid16.Coords) (k16_t1 : Fin k16_t1_loop.trips) : BitVec 1 :=
  let c0_i32_21 : BitVec 32 := 0#32
  let c1_i32_22 : BitVec 32 := 1#32
  let arg12 : BitVec 32 := Scf.iv c0_i32_21 c1_i32_22 k16_t1
  let c2_i32_32 : BitVec 32 := 2#32
  let v52 : BitVec 32 := Scalar.muli arg12 c2_i32_32
  let c1_i32_33 : BitVec 32 := 1#32
  let v53 : BitVec 32 := Scalar.addi v52 c1_i32_33
  let c500_i32 : BitVec 32 := 500#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v2 : BitVec 32 := Scalar.subi c500_i32 v1
  let c32_i32 : BitVec 32 := 32#32
  let v3 : BitVec 32 := Scalar.addi v2 c32_i32
  let c1_i32 : BitVec 32 := 1#32
  let v4 : BitVec 32 := Scalar.subi v3 c1_i32
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c32_i32_0 : BitVec 32 := 32#32
  let c0_i32_2 : BitVec 32 := 0#32
  let v11 : BitVec 1 := Scalar.cmpi .sgt c32_i32_0 c0_i32_2
  let v12 : BitVec 32 := Scalar.extui v11
  let c0_i32_3 : BitVec 32 := 0#32
  let v13 : BitVec 1 := Scalar.cmpi .slt c32_i32_0 c0_i32_3
  let v14 : BitVec 32 := Scalar.extui v13
  let v15 : BitVec 32 := Scalar.subi v12 v14
  let v16 : BitVec 1 := Scalar.cmpi .ne v10 v15
  let v17 : BitVec 32 := Scalar.remsi v4 c32_i32_0
  let c0_i32_4 : BitVec 32 := 0#32
  let v18 : BitVec 1 := Scalar.cmpi .ne v17 c0_i32_4
  let v19 : BitVec 1 := Scalar.andi v16 v18
  let v5 : BitVec 32 := Scalar.divsi v4 c32_i32_0
  let c1_i32_5 : BitVec 32 := 1#32
  let v20 : BitVec 32 := Scalar.subi v5 c1_i32_5
  let v21 : BitVec 32 := Scalar.select v19 v20 v5
  let v57 : BitVec 1 := Scalar.cmpi .slt v53 v21
  let v58 : BitVec 32 := Scalar.extui v57
  let c0_i32_36 : BitVec 32 := 0#32
  let v59 : BitVec 1 := Scalar.cmpi .ne v58 c0_i32_36
  v59

@[reducible] def k16_t3_loop : Scf.Loop 32 :=
  let c0_i32_48 : BitVec 32 := 0#32
  let c200_i32 : BitVec 32 := 200#32
  let v68 : BitVec 32 := Scalar.addi c0_i32_48 c200_i32
  let c1_i32_49 : BitVec 32 := 1#32
  ⟨c0_i32_48, v68, c1_i32_49⟩
def k16_off8 (k16_t3 : Fin k16_t3_loop.trips) : Fin 2 → Nat :=
  let c0_i32_56 : BitVec 32 := 0#32
  let v77 : Index := Scalar.indexCast c0_i32_56
  let c0_i32_48 : BitVec 32 := 0#32
  let c1_i32_49 : BitVec 32 := 1#32
  let arg13 : BitVec 32 := Scf.iv c0_i32_48 c1_i32_49 k16_t3
  let c16_i32_55 : BitVec 32 := 16#32
  let v76 : BitVec 32 := Scalar.muli arg13 c16_i32_55
  let v78 : Index := Scalar.indexCast v76
  ![0, v78.toNat]
def k16_off9 (k16_t3 : Fin k16_t3_loop.trips) : Fin 1 → Nat :=
  let c0_i32_58 : BitVec 32 := 0#32
  let c0_i32_48 : BitVec 32 := 0#32
  let c1_i32_49 : BitVec 32 := 1#32
  let arg13 : BitVec 32 := Scf.iv c0_i32_48 c1_i32_49 k16_t3
  let c16_i32_57 : BitVec 32 := 16#32
  let v80 : BitVec 32 := Scalar.muli arg13 c16_i32_57
  let v81 : BitVec 32 := Scalar.addi c0_i32_58 v80
  let v82 : Index := Scalar.indexCast v81
  ![v82.toNat]
def k16_off10 (i : grid16.Coords) (k16_t1 : Fin k16_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_21 : BitVec 32 := 0#32
  let c1_i32_22 : BitVec 32 := 1#32
  let arg12 : BitVec 32 := Scf.iv c0_i32_21 c1_i32_22 k16_t1
  let c2_i32_32 : BitVec 32 := 2#32
  let v52 : BitVec 32 := Scalar.muli arg12 c2_i32_32
  let c1_i32_33 : BitVec 32 := 1#32
  let v53 : BitVec 32 := Scalar.addi v52 c1_i32_33
  let c32_i32_51 : BitVec 32 := 32#32
  let v69 : BitVec 32 := Scalar.muli v53 c32_i32_51
  let v70 : BitVec 32 := Scalar.addi v1 v69
  let c3200_i32_52 : BitVec 32 := 3200#32
  let v71 : BitVec 32 := Scalar.muli v70 c3200_i32_52
  ![v71.toNat]
def k16_cond6 (i : grid16.Coords) (k16_t1 : Fin k16_t1_loop.trips) : BitVec 1 :=
  let c0_i32_21 : BitVec 32 := 0#32
  let c1_i32_22 : BitVec 32 := 1#32
  let arg12 : BitVec 32 := Scf.iv c0_i32_21 c1_i32_22 k16_t1
  let c2_i32_32 : BitVec 32 := 2#32
  let v52 : BitVec 32 := Scalar.muli arg12 c2_i32_32
  let c1_i32_33 : BitVec 32 := 1#32
  let v53 : BitVec 32 := Scalar.addi v52 c1_i32_33
  let c2_i32_37 : BitVec 32 := 2#32
  let v60 : BitVec 32 := Scalar.addi v53 c2_i32_37
  let c500_i32 : BitVec 32 := 500#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v2 : BitVec 32 := Scalar.subi c500_i32 v1
  let c32_i32 : BitVec 32 := 32#32
  let v3 : BitVec 32 := Scalar.addi v2 c32_i32
  let c1_i32 : BitVec 32 := 1#32
  let v4 : BitVec 32 := Scalar.subi v3 c1_i32
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c32_i32_0 : BitVec 32 := 32#32
  let c0_i32_2 : BitVec 32 := 0#32
  let v11 : BitVec 1 := Scalar.cmpi .sgt c32_i32_0 c0_i32_2
  let v12 : BitVec 32 := Scalar.extui v11
  let c0_i32_3 : BitVec 32 := 0#32
  let v13 : BitVec 1 := Scalar.cmpi .slt c32_i32_0 c0_i32_3
  let v14 : BitVec 32 := Scalar.extui v13
  let v15 : BitVec 32 := Scalar.subi v12 v14
  let v16 : BitVec 1 := Scalar.cmpi .ne v10 v15
  let v17 : BitVec 32 := Scalar.remsi v4 c32_i32_0
  let c0_i32_4 : BitVec 32 := 0#32
  let v18 : BitVec 1 := Scalar.cmpi .ne v17 c0_i32_4
  let v19 : BitVec 1 := Scalar.andi v16 v18
  let v5 : BitVec 32 := Scalar.divsi v4 c32_i32_0
  let c1_i32_5 : BitVec 32 := 1#32
  let v20 : BitVec 32 := Scalar.subi v5 c1_i32_5
  let v21 : BitVec 32 := Scalar.select v19 v20 v5
  let v61 : BitVec 1 := Scalar.cmpi .slt v60 v21
  let v62 : BitVec 32 := Scalar.extui v61
  let c0_i32_38 : BitVec 32 := 0#32
  let v63 : BitVec 1 := Scalar.cmpi .ne v62 c0_i32_38
  v63

def k16_off11 (i : grid16.Coords) (k16_t1 : Fin k16_t1_loop.trips) : Fin 2 → Nat :=
  let c16_i32_44 : BitVec 32 := 16#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_21 : BitVec 32 := 0#32
  let c1_i32_22 : BitVec 32 := 1#32
  let arg12 : BitVec 32 := Scf.iv c0_i32_21 c1_i32_22 k16_t1
  let c2_i32_32 : BitVec 32 := 2#32
  let v52 : BitVec 32 := Scalar.muli arg12 c2_i32_32
  let c1_i32_33 : BitVec 32 := 1#32
  let v53 : BitVec 32 := Scalar.addi v52 c1_i32_33
  let c2_i32_39 : BitVec 32 := 2#32
  let v64 : BitVec 32 := Scalar.addi v53 c2_i32_39
  let c32_i32_40 : BitVec 32 := 32#32
  let v65 : BitVec 32 := Scalar.muli v64 c32_i32_40
  let v66 : BitVec 32 := Scalar.addi v1 v65
  let c3200_i32_41 : BitVec 32 := 3200#32
  let v67 : BitVec 32 := Scalar.muli v66 c3200_i32_41
  ![16, v67.toNat]
def k16_cond7 (i : grid16.Coords) : BitVec 1 :=
  let c500_i32 : BitVec 32 := 500#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v2 : BitVec 32 := Scalar.subi c500_i32 v1
  let c32_i32 : BitVec 32 := 32#32
  let v3 : BitVec 32 := Scalar.addi v2 c32_i32
  let c1_i32 : BitVec 32 := 1#32
  let v4 : BitVec 32 := Scalar.subi v3 c1_i32
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c32_i32_0 : BitVec 32 := 32#32
  let c0_i32_2 : BitVec 32 := 0#32
  let v11 : BitVec 1 := Scalar.cmpi .sgt c32_i32_0 c0_i32_2
  let v12 : BitVec 32 := Scalar.extui v11
  let c0_i32_3 : BitVec 32 := 0#32
  let v13 : BitVec 1 := Scalar.cmpi .slt c32_i32_0 c0_i32_3
  let v14 : BitVec 32 := Scalar.extui v13
  let v15 : BitVec 32 := Scalar.subi v12 v14
  let v16 : BitVec 1 := Scalar.cmpi .ne v10 v15
  let v17 : BitVec 32 := Scalar.remsi v4 c32_i32_0
  let c0_i32_4 : BitVec 32 := 0#32
  let v18 : BitVec 1 := Scalar.cmpi .ne v17 c0_i32_4
  let v19 : BitVec 1 := Scalar.andi v16 v18
  let v5 : BitVec 32 := Scalar.divsi v4 c32_i32_0
  let c1_i32_5 : BitVec 32 := 1#32
  let v20 : BitVec 32 := Scalar.subi v5 c1_i32_5
  let v21 : BitVec 32 := Scalar.select v19 v20 v5
  let c14_i32 : BitVec 32 := 14#32
  let v35 : BitVec 1 := Scalar.cmpi .sgt v21 c14_i32
  let v36 : BitVec 32 := Scalar.extui v35
  let c0_i32_24 : BitVec 32 := 0#32
  let v37 : BitVec 1 := Scalar.cmpi .ne v36 c0_i32_24
  v37

def k16_off12 (i : grid16.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c448_i32 : BitVec 32 := 448#32
  let v41 : BitVec 32 := Scalar.addi v1 c448_i32
  let c3200_i32_26 : BitVec 32 := 3200#32
  let v42 : BitVec 32 := Scalar.muli v41 c3200_i32_26
  ![v42.toNat]
def k16_cond8 (i : grid16.Coords) : BitVec 1 :=
  let c500_i32 : BitVec 32 := 500#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v2 : BitVec 32 := Scalar.subi c500_i32 v1
  let c32_i32 : BitVec 32 := 32#32
  let v3 : BitVec 32 := Scalar.addi v2 c32_i32
  let c1_i32 : BitVec 32 := 1#32
  let v4 : BitVec 32 := Scalar.subi v3 c1_i32
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c32_i32_0 : BitVec 32 := 32#32
  let c0_i32_2 : BitVec 32 := 0#32
  let v11 : BitVec 1 := Scalar.cmpi .sgt c32_i32_0 c0_i32_2
  let v12 : BitVec 32 := Scalar.extui v11
  let c0_i32_3 : BitVec 32 := 0#32
  let v13 : BitVec 1 := Scalar.cmpi .slt c32_i32_0 c0_i32_3
  let v14 : BitVec 32 := Scalar.extui v13
  let v15 : BitVec 32 := Scalar.subi v12 v14
  let v16 : BitVec 1 := Scalar.cmpi .ne v10 v15
  let v17 : BitVec 32 := Scalar.remsi v4 c32_i32_0
  let c0_i32_4 : BitVec 32 := 0#32
  let v18 : BitVec 1 := Scalar.cmpi .ne v17 c0_i32_4
  let v19 : BitVec 1 := Scalar.andi v16 v18
  let v5 : BitVec 32 := Scalar.divsi v4 c32_i32_0
  let c1_i32_5 : BitVec 32 := 1#32
  let v20 : BitVec 32 := Scalar.subi v5 c1_i32_5
  let v21 : BitVec 32 := Scalar.select v19 v20 v5
  let c15_i32 : BitVec 32 := 15#32
  let v38 : BitVec 1 := Scalar.cmpi .sgt v21 c15_i32
  let v39 : BitVec 32 := Scalar.extui v38
  let c0_i32_25 : BitVec 32 := 0#32
  let v40 : BitVec 1 := Scalar.cmpi .ne v39 c0_i32_25
  v40

def k16_off13 (i : grid16.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c480_i32 : BitVec 32 := 480#32
  let v41 : BitVec 32 := Scalar.addi v1 c480_i32
  let c3200_i32_26 : BitVec 32 := 3200#32
  let v42 : BitVec 32 := Scalar.muli v41 c3200_i32_26
  ![v42.toNat]
abbrev grid17 : Pipeline.Grid := ⟨2, ![2, 16], ![false, false]⟩

def k17_off1 (i : grid17.Coords) (c0_i32_6 : BitVec 32) : Fin 2 → Nat :=
  let c17_i32 : BitVec 32 := 17#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v22 : BitVec 32 := Scalar.addi v1 c0_i32_6
  let c3200_i32 : BitVec 32 := 3200#32
  let v23 : BitVec 32 := Scalar.muli v22 c3200_i32
  ![17, v23.toNat]
@[reducible] def k17_t1_loop : Scf.Loop 32 :=
  let c0_i32_21 : BitVec 32 := 0#32
  let c8_i32 : BitVec 32 := 8#32
  let v34 : BitVec 32 := Scalar.addi c0_i32_21 c8_i32
  let c1_i32_22 : BitVec 32 := 1#32
  ⟨c0_i32_21, v34, c1_i32_22⟩
def k17_cond1 (k17_t1 : Fin k17_t1_loop.trips) : BitVec 1 :=
  let c0_i32_21 : BitVec 32 := 0#32
  let c1_i32_22 : BitVec 32 := 1#32
  let arg12 : BitVec 32 := Scf.iv c0_i32_21 c1_i32_22 k17_t1
  let c2_i32_26 : BitVec 32 := 2#32
  let v41 : BitVec 32 := Scalar.muli arg12 c2_i32_26
  let c2_i32_27 : BitVec 32 := 2#32
  let v42 : BitVec 1 := Scalar.cmpi .sge v41 c2_i32_27
  let v43 : BitVec 32 := Scalar.extui v42
  let c0_i32_28 : BitVec 32 := 0#32
  let v44 : BitVec 1 := Scalar.cmpi .ne v43 c0_i32_28
  v44

def k17_off2 (i : grid17.Coords) (k17_t1 : Fin k17_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_21 : BitVec 32 := 0#32
  let c1_i32_22 : BitVec 32 := 1#32
  let arg12 : BitVec 32 := Scf.iv c0_i32_21 c1_i32_22 k17_t1
  let c2_i32_26 : BitVec 32 := 2#32
  let v41 : BitVec 32 := Scalar.muli arg12 c2_i32_26
  let c2_i32_39 : BitVec 32 := 2#32
  let v64 : BitVec 32 := Scalar.subi v41 c2_i32_39
  let c32_i32_40 : BitVec 32 := 32#32
  let v65 : BitVec 32 := Scalar.muli v64 c32_i32_40
  let v66 : BitVec 32 := Scalar.addi v1 v65
  let c3200_i32_41 : BitVec 32 := 3200#32
  let v67 : BitVec 32 := Scalar.muli v66 c3200_i32_41
  ![v67.toNat]
def k17_cond2 (i : grid17.Coords) (k17_t1 : Fin k17_t1_loop.trips) : BitVec 1 :=
  let c0_i32_21 : BitVec 32 := 0#32
  let c1_i32_22 : BitVec 32 := 1#32
  let arg12 : BitVec 32 := Scf.iv c0_i32_21 c1_i32_22 k17_t1
  let c2_i32_26 : BitVec 32 := 2#32
  let v41 : BitVec 32 := Scalar.muli arg12 c2_i32_26
  let c500_i32 : BitVec 32 := 500#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v2 : BitVec 32 := Scalar.subi c500_i32 v1
  let c32_i32 : BitVec 32 := 32#32
  let v3 : BitVec 32 := Scalar.addi v2 c32_i32
  let c1_i32 : BitVec 32 := 1#32
  let v4 : BitVec 32 := Scalar.subi v3 c1_i32
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c32_i32_0 : BitVec 32 := 32#32
  let c0_i32_2 : BitVec 32 := 0#32
  let v11 : BitVec 1 := Scalar.cmpi .sgt c32_i32_0 c0_i32_2
  let v12 : BitVec 32 := Scalar.extui v11
  let c0_i32_3 : BitVec 32 := 0#32
  let v13 : BitVec 1 := Scalar.cmpi .slt c32_i32_0 c0_i32_3
  let v14 : BitVec 32 := Scalar.extui v13
  let v15 : BitVec 32 := Scalar.subi v12 v14
  let v16 : BitVec 1 := Scalar.cmpi .ne v10 v15
  let v17 : BitVec 32 := Scalar.remsi v4 c32_i32_0
  let c0_i32_4 : BitVec 32 := 0#32
  let v18 : BitVec 1 := Scalar.cmpi .ne v17 c0_i32_4
  let v19 : BitVec 1 := Scalar.andi v16 v18
  let v5 : BitVec 32 := Scalar.divsi v4 c32_i32_0
  let c1_i32_5 : BitVec 32 := 1#32
  let v20 : BitVec 32 := Scalar.subi v5 c1_i32_5
  let v21 : BitVec 32 := Scalar.select v19 v20 v5
  let v45 : BitVec 1 := Scalar.cmpi .slt v41 v21
  let v46 : BitVec 32 := Scalar.extui v45
  let c0_i32_29 : BitVec 32 := 0#32
  let v47 : BitVec 1 := Scalar.cmpi .ne v46 c0_i32_29
  v47

@[reducible] def k17_t2_loop : Scf.Loop 32 :=
  let c0_i32_48 : BitVec 32 := 0#32
  let c200_i32 : BitVec 32 := 200#32
  let v68 : BitVec 32 := Scalar.addi c0_i32_48 c200_i32
  let c1_i32_49 : BitVec 32 := 1#32
  ⟨c0_i32_48, v68, c1_i32_49⟩
def k17_off3 (k17_t2 : Fin k17_t2_loop.trips) : Fin 2 → Nat :=
  let c0_i32_55 : BitVec 32 := 0#32
  let v77 : Index := Scalar.indexCast c0_i32_55
  let c0_i32_48 : BitVec 32 := 0#32
  let c1_i32_49 : BitVec 32 := 1#32
  let arg13 : BitVec 32 := Scf.iv c0_i32_48 c1_i32_49 k17_t2
  let c16_i32 : BitVec 32 := 16#32
  let v76 : BitVec 32 := Scalar.muli arg13 c16_i32
  let v78 : Index := Scalar.indexCast v76
  ![0, v78.toNat]
def k17_off4 (k17_t2 : Fin k17_t2_loop.trips) : Fin 1 → Nat :=
  let c0_i32_57 : BitVec 32 := 0#32
  let c0_i32_48 : BitVec 32 := 0#32
  let c1_i32_49 : BitVec 32 := 1#32
  let arg13 : BitVec 32 := Scf.iv c0_i32_48 c1_i32_49 k17_t2
  let c16_i32_56 : BitVec 32 := 16#32
  let v80 : BitVec 32 := Scalar.muli arg13 c16_i32_56
  let v81 : BitVec 32 := Scalar.addi c0_i32_57 v80
  let v82 : Index := Scalar.indexCast v81
  ![v82.toNat]
def k17_off5 (i : grid17.Coords) (k17_t1 : Fin k17_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_21 : BitVec 32 := 0#32
  let c1_i32_22 : BitVec 32 := 1#32
  let arg12 : BitVec 32 := Scf.iv c0_i32_21 c1_i32_22 k17_t1
  let c2_i32_26 : BitVec 32 := 2#32
  let v41 : BitVec 32 := Scalar.muli arg12 c2_i32_26
  let c32_i32_51 : BitVec 32 := 32#32
  let v69 : BitVec 32 := Scalar.muli v41 c32_i32_51
  let v70 : BitVec 32 := Scalar.addi v1 v69
  let c3200_i32_52 : BitVec 32 := 3200#32
  let v71 : BitVec 32 := Scalar.muli v70 c3200_i32_52
  ![v71.toNat]
def k17_cond3 (i : grid17.Coords) (k17_t1 : Fin k17_t1_loop.trips) : BitVec 1 :=
  let c0_i32_21 : BitVec 32 := 0#32
  let c1_i32_22 : BitVec 32 := 1#32
  let arg12 : BitVec 32 := Scf.iv c0_i32_21 c1_i32_22 k17_t1
  let c2_i32_26 : BitVec 32 := 2#32
  let v41 : BitVec 32 := Scalar.muli arg12 c2_i32_26
  let c2_i32_30 : BitVec 32 := 2#32
  let v48 : BitVec 32 := Scalar.addi v41 c2_i32_30
  let c500_i32 : BitVec 32 := 500#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v2 : BitVec 32 := Scalar.subi c500_i32 v1
  let c32_i32 : BitVec 32 := 32#32
  let v3 : BitVec 32 := Scalar.addi v2 c32_i32
  let c1_i32 : BitVec 32 := 1#32
  let v4 : BitVec 32 := Scalar.subi v3 c1_i32
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c32_i32_0 : BitVec 32 := 32#32
  let c0_i32_2 : BitVec 32 := 0#32
  let v11 : BitVec 1 := Scalar.cmpi .sgt c32_i32_0 c0_i32_2
  let v12 : BitVec 32 := Scalar.extui v11
  let c0_i32_3 : BitVec 32 := 0#32
  let v13 : BitVec 1 := Scalar.cmpi .slt c32_i32_0 c0_i32_3
  let v14 : BitVec 32 := Scalar.extui v13
  let v15 : BitVec 32 := Scalar.subi v12 v14
  let v16 : BitVec 1 := Scalar.cmpi .ne v10 v15
  let v17 : BitVec 32 := Scalar.remsi v4 c32_i32_0
  let c0_i32_4 : BitVec 32 := 0#32
  let v18 : BitVec 1 := Scalar.cmpi .ne v17 c0_i32_4
  let v19 : BitVec 1 := Scalar.andi v16 v18
  let v5 : BitVec 32 := Scalar.divsi v4 c32_i32_0
  let c1_i32_5 : BitVec 32 := 1#32
  let v20 : BitVec 32 := Scalar.subi v5 c1_i32_5
  let v21 : BitVec 32 := Scalar.select v19 v20 v5
  let v49 : BitVec 1 := Scalar.cmpi .slt v48 v21
  let v50 : BitVec 32 := Scalar.extui v49
  let c0_i32_31 : BitVec 32 := 0#32
  let v51 : BitVec 1 := Scalar.cmpi .ne v50 c0_i32_31
  v51

def k17_off6 (i : grid17.Coords) (k17_t1 : Fin k17_t1_loop.trips) : Fin 2 → Nat :=
  let c17_i32_44 : BitVec 32 := 17#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_21 : BitVec 32 := 0#32
  let c1_i32_22 : BitVec 32 := 1#32
  let arg12 : BitVec 32 := Scf.iv c0_i32_21 c1_i32_22 k17_t1
  let c2_i32_26 : BitVec 32 := 2#32
  let v41 : BitVec 32 := Scalar.muli arg12 c2_i32_26
  let c2_i32_39 : BitVec 32 := 2#32
  let v64 : BitVec 32 := Scalar.addi v41 c2_i32_39
  let c32_i32_40 : BitVec 32 := 32#32
  let v65 : BitVec 32 := Scalar.muli v64 c32_i32_40
  let v66 : BitVec 32 := Scalar.addi v1 v65
  let c3200_i32_41 : BitVec 32 := 3200#32
  let v67 : BitVec 32 := Scalar.muli v66 c3200_i32_41
  ![17, v67.toNat]
def k17_cond4 (k17_t1 : Fin k17_t1_loop.trips) : BitVec 1 :=
  let c0_i32_21 : BitVec 32 := 0#32
  let c1_i32_22 : BitVec 32 := 1#32
  let arg12 : BitVec 32 := Scf.iv c0_i32_21 c1_i32_22 k17_t1
  let c2_i32_32 : BitVec 32 := 2#32
  let v52 : BitVec 32 := Scalar.muli arg12 c2_i32_32
  let c1_i32_33 : BitVec 32 := 1#32
  let v53 : BitVec 32 := Scalar.addi v52 c1_i32_33
  let c2_i32_34 : BitVec 32 := 2#32
  let v54 : BitVec 1 := Scalar.cmpi .sge v53 c2_i32_34
  let v55 : BitVec 32 := Scalar.extui v54
  let c0_i32_35 : BitVec 32 := 0#32
  let v56 : BitVec 1 := Scalar.cmpi .ne v55 c0_i32_35
  v56

def k17_off7 (i : grid17.Coords) (k17_t1 : Fin k17_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_21 : BitVec 32 := 0#32
  let c1_i32_22 : BitVec 32 := 1#32
  let arg12 : BitVec 32 := Scf.iv c0_i32_21 c1_i32_22 k17_t1
  let c2_i32_32 : BitVec 32 := 2#32
  let v52 : BitVec 32 := Scalar.muli arg12 c2_i32_32
  let c1_i32_33 : BitVec 32 := 1#32
  let v53 : BitVec 32 := Scalar.addi v52 c1_i32_33
  let c2_i32_39 : BitVec 32 := 2#32
  let v64 : BitVec 32 := Scalar.subi v53 c2_i32_39
  let c32_i32_40 : BitVec 32 := 32#32
  let v65 : BitVec 32 := Scalar.muli v64 c32_i32_40
  let v66 : BitVec 32 := Scalar.addi v1 v65
  let c3200_i32_41 : BitVec 32 := 3200#32
  let v67 : BitVec 32 := Scalar.muli v66 c3200_i32_41
  ![v67.toNat]
def k17_cond5 (i : grid17.Coords) (k17_t1 : Fin k17_t1_loop.trips) : BitVec 1 :=
  let c0_i32_21 : BitVec 32 := 0#32
  let c1_i32_22 : BitVec 32 := 1#32
  let arg12 : BitVec 32 := Scf.iv c0_i32_21 c1_i32_22 k17_t1
  let c2_i32_32 : BitVec 32 := 2#32
  let v52 : BitVec 32 := Scalar.muli arg12 c2_i32_32
  let c1_i32_33 : BitVec 32 := 1#32
  let v53 : BitVec 32 := Scalar.addi v52 c1_i32_33
  let c500_i32 : BitVec 32 := 500#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v2 : BitVec 32 := Scalar.subi c500_i32 v1
  let c32_i32 : BitVec 32 := 32#32
  let v3 : BitVec 32 := Scalar.addi v2 c32_i32
  let c1_i32 : BitVec 32 := 1#32
  let v4 : BitVec 32 := Scalar.subi v3 c1_i32
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c32_i32_0 : BitVec 32 := 32#32
  let c0_i32_2 : BitVec 32 := 0#32
  let v11 : BitVec 1 := Scalar.cmpi .sgt c32_i32_0 c0_i32_2
  let v12 : BitVec 32 := Scalar.extui v11
  let c0_i32_3 : BitVec 32 := 0#32
  let v13 : BitVec 1 := Scalar.cmpi .slt c32_i32_0 c0_i32_3
  let v14 : BitVec 32 := Scalar.extui v13
  let v15 : BitVec 32 := Scalar.subi v12 v14
  let v16 : BitVec 1 := Scalar.cmpi .ne v10 v15
  let v17 : BitVec 32 := Scalar.remsi v4 c32_i32_0
  let c0_i32_4 : BitVec 32 := 0#32
  let v18 : BitVec 1 := Scalar.cmpi .ne v17 c0_i32_4
  let v19 : BitVec 1 := Scalar.andi v16 v18
  let v5 : BitVec 32 := Scalar.divsi v4 c32_i32_0
  let c1_i32_5 : BitVec 32 := 1#32
  let v20 : BitVec 32 := Scalar.subi v5 c1_i32_5
  let v21 : BitVec 32 := Scalar.select v19 v20 v5
  let v57 : BitVec 1 := Scalar.cmpi .slt v53 v21
  let v58 : BitVec 32 := Scalar.extui v57
  let c0_i32_36 : BitVec 32 := 0#32
  let v59 : BitVec 1 := Scalar.cmpi .ne v58 c0_i32_36
  v59

@[reducible] def k17_t3_loop : Scf.Loop 32 :=
  let c0_i32_48 : BitVec 32 := 0#32
  let c200_i32 : BitVec 32 := 200#32
  let v68 : BitVec 32 := Scalar.addi c0_i32_48 c200_i32
  let c1_i32_49 : BitVec 32 := 1#32
  ⟨c0_i32_48, v68, c1_i32_49⟩
def k17_off8 (k17_t3 : Fin k17_t3_loop.trips) : Fin 2 → Nat :=
  let c0_i32_55 : BitVec 32 := 0#32
  let v77 : Index := Scalar.indexCast c0_i32_55
  let c0_i32_48 : BitVec 32 := 0#32
  let c1_i32_49 : BitVec 32 := 1#32
  let arg13 : BitVec 32 := Scf.iv c0_i32_48 c1_i32_49 k17_t3
  let c16_i32 : BitVec 32 := 16#32
  let v76 : BitVec 32 := Scalar.muli arg13 c16_i32
  let v78 : Index := Scalar.indexCast v76
  ![0, v78.toNat]
def k17_off9 (k17_t3 : Fin k17_t3_loop.trips) : Fin 1 → Nat :=
  let c0_i32_57 : BitVec 32 := 0#32
  let c0_i32_48 : BitVec 32 := 0#32
  let c1_i32_49 : BitVec 32 := 1#32
  let arg13 : BitVec 32 := Scf.iv c0_i32_48 c1_i32_49 k17_t3
  let c16_i32_56 : BitVec 32 := 16#32
  let v80 : BitVec 32 := Scalar.muli arg13 c16_i32_56
  let v81 : BitVec 32 := Scalar.addi c0_i32_57 v80
  let v82 : Index := Scalar.indexCast v81
  ![v82.toNat]
def k17_off10 (i : grid17.Coords) (k17_t1 : Fin k17_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_21 : BitVec 32 := 0#32
  let c1_i32_22 : BitVec 32 := 1#32
  let arg12 : BitVec 32 := Scf.iv c0_i32_21 c1_i32_22 k17_t1
  let c2_i32_32 : BitVec 32 := 2#32
  let v52 : BitVec 32 := Scalar.muli arg12 c2_i32_32
  let c1_i32_33 : BitVec 32 := 1#32
  let v53 : BitVec 32 := Scalar.addi v52 c1_i32_33
  let c32_i32_51 : BitVec 32 := 32#32
  let v69 : BitVec 32 := Scalar.muli v53 c32_i32_51
  let v70 : BitVec 32 := Scalar.addi v1 v69
  let c3200_i32_52 : BitVec 32 := 3200#32
  let v71 : BitVec 32 := Scalar.muli v70 c3200_i32_52
  ![v71.toNat]
def k17_cond6 (i : grid17.Coords) (k17_t1 : Fin k17_t1_loop.trips) : BitVec 1 :=
  let c0_i32_21 : BitVec 32 := 0#32
  let c1_i32_22 : BitVec 32 := 1#32
  let arg12 : BitVec 32 := Scf.iv c0_i32_21 c1_i32_22 k17_t1
  let c2_i32_32 : BitVec 32 := 2#32
  let v52 : BitVec 32 := Scalar.muli arg12 c2_i32_32
  let c1_i32_33 : BitVec 32 := 1#32
  let v53 : BitVec 32 := Scalar.addi v52 c1_i32_33
  let c2_i32_37 : BitVec 32 := 2#32
  let v60 : BitVec 32 := Scalar.addi v53 c2_i32_37
  let c500_i32 : BitVec 32 := 500#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v2 : BitVec 32 := Scalar.subi c500_i32 v1
  let c32_i32 : BitVec 32 := 32#32
  let v3 : BitVec 32 := Scalar.addi v2 c32_i32
  let c1_i32 : BitVec 32 := 1#32
  let v4 : BitVec 32 := Scalar.subi v3 c1_i32
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c32_i32_0 : BitVec 32 := 32#32
  let c0_i32_2 : BitVec 32 := 0#32
  let v11 : BitVec 1 := Scalar.cmpi .sgt c32_i32_0 c0_i32_2
  let v12 : BitVec 32 := Scalar.extui v11
  let c0_i32_3 : BitVec 32 := 0#32
  let v13 : BitVec 1 := Scalar.cmpi .slt c32_i32_0 c0_i32_3
  let v14 : BitVec 32 := Scalar.extui v13
  let v15 : BitVec 32 := Scalar.subi v12 v14
  let v16 : BitVec 1 := Scalar.cmpi .ne v10 v15
  let v17 : BitVec 32 := Scalar.remsi v4 c32_i32_0
  let c0_i32_4 : BitVec 32 := 0#32
  let v18 : BitVec 1 := Scalar.cmpi .ne v17 c0_i32_4
  let v19 : BitVec 1 := Scalar.andi v16 v18
  let v5 : BitVec 32 := Scalar.divsi v4 c32_i32_0
  let c1_i32_5 : BitVec 32 := 1#32
  let v20 : BitVec 32 := Scalar.subi v5 c1_i32_5
  let v21 : BitVec 32 := Scalar.select v19 v20 v5
  let v61 : BitVec 1 := Scalar.cmpi .slt v60 v21
  let v62 : BitVec 32 := Scalar.extui v61
  let c0_i32_38 : BitVec 32 := 0#32
  let v63 : BitVec 1 := Scalar.cmpi .ne v62 c0_i32_38
  v63

def k17_off11 (i : grid17.Coords) (k17_t1 : Fin k17_t1_loop.trips) : Fin 2 → Nat :=
  let c17_i32_44 : BitVec 32 := 17#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_21 : BitVec 32 := 0#32
  let c1_i32_22 : BitVec 32 := 1#32
  let arg12 : BitVec 32 := Scf.iv c0_i32_21 c1_i32_22 k17_t1
  let c2_i32_32 : BitVec 32 := 2#32
  let v52 : BitVec 32 := Scalar.muli arg12 c2_i32_32
  let c1_i32_33 : BitVec 32 := 1#32
  let v53 : BitVec 32 := Scalar.addi v52 c1_i32_33
  let c2_i32_39 : BitVec 32 := 2#32
  let v64 : BitVec 32 := Scalar.addi v53 c2_i32_39
  let c32_i32_40 : BitVec 32 := 32#32
  let v65 : BitVec 32 := Scalar.muli v64 c32_i32_40
  let v66 : BitVec 32 := Scalar.addi v1 v65
  let c3200_i32_41 : BitVec 32 := 3200#32
  let v67 : BitVec 32 := Scalar.muli v66 c3200_i32_41
  ![17, v67.toNat]
def k17_cond7 (i : grid17.Coords) : BitVec 1 :=
  let c500_i32 : BitVec 32 := 500#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v2 : BitVec 32 := Scalar.subi c500_i32 v1
  let c32_i32 : BitVec 32 := 32#32
  let v3 : BitVec 32 := Scalar.addi v2 c32_i32
  let c1_i32 : BitVec 32 := 1#32
  let v4 : BitVec 32 := Scalar.subi v3 c1_i32
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c32_i32_0 : BitVec 32 := 32#32
  let c0_i32_2 : BitVec 32 := 0#32
  let v11 : BitVec 1 := Scalar.cmpi .sgt c32_i32_0 c0_i32_2
  let v12 : BitVec 32 := Scalar.extui v11
  let c0_i32_3 : BitVec 32 := 0#32
  let v13 : BitVec 1 := Scalar.cmpi .slt c32_i32_0 c0_i32_3
  let v14 : BitVec 32 := Scalar.extui v13
  let v15 : BitVec 32 := Scalar.subi v12 v14
  let v16 : BitVec 1 := Scalar.cmpi .ne v10 v15
  let v17 : BitVec 32 := Scalar.remsi v4 c32_i32_0
  let c0_i32_4 : BitVec 32 := 0#32
  let v18 : BitVec 1 := Scalar.cmpi .ne v17 c0_i32_4
  let v19 : BitVec 1 := Scalar.andi v16 v18
  let v5 : BitVec 32 := Scalar.divsi v4 c32_i32_0
  let c1_i32_5 : BitVec 32 := 1#32
  let v20 : BitVec 32 := Scalar.subi v5 c1_i32_5
  let v21 : BitVec 32 := Scalar.select v19 v20 v5
  let c14_i32 : BitVec 32 := 14#32
  let v35 : BitVec 1 := Scalar.cmpi .sgt v21 c14_i32
  let v36 : BitVec 32 := Scalar.extui v35
  let c0_i32_24 : BitVec 32 := 0#32
  let v37 : BitVec 1 := Scalar.cmpi .ne v36 c0_i32_24
  v37

def k17_off12 (i : grid17.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c448_i32 : BitVec 32 := 448#32
  let v41 : BitVec 32 := Scalar.addi v1 c448_i32
  let c3200_i32_26 : BitVec 32 := 3200#32
  let v42 : BitVec 32 := Scalar.muli v41 c3200_i32_26
  ![v42.toNat]
def k17_cond8 (i : grid17.Coords) : BitVec 1 :=
  let c500_i32 : BitVec 32 := 500#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v2 : BitVec 32 := Scalar.subi c500_i32 v1
  let c32_i32 : BitVec 32 := 32#32
  let v3 : BitVec 32 := Scalar.addi v2 c32_i32
  let c1_i32 : BitVec 32 := 1#32
  let v4 : BitVec 32 := Scalar.subi v3 c1_i32
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c32_i32_0 : BitVec 32 := 32#32
  let c0_i32_2 : BitVec 32 := 0#32
  let v11 : BitVec 1 := Scalar.cmpi .sgt c32_i32_0 c0_i32_2
  let v12 : BitVec 32 := Scalar.extui v11
  let c0_i32_3 : BitVec 32 := 0#32
  let v13 : BitVec 1 := Scalar.cmpi .slt c32_i32_0 c0_i32_3
  let v14 : BitVec 32 := Scalar.extui v13
  let v15 : BitVec 32 := Scalar.subi v12 v14
  let v16 : BitVec 1 := Scalar.cmpi .ne v10 v15
  let v17 : BitVec 32 := Scalar.remsi v4 c32_i32_0
  let c0_i32_4 : BitVec 32 := 0#32
  let v18 : BitVec 1 := Scalar.cmpi .ne v17 c0_i32_4
  let v19 : BitVec 1 := Scalar.andi v16 v18
  let v5 : BitVec 32 := Scalar.divsi v4 c32_i32_0
  let c1_i32_5 : BitVec 32 := 1#32
  let v20 : BitVec 32 := Scalar.subi v5 c1_i32_5
  let v21 : BitVec 32 := Scalar.select v19 v20 v5
  let c15_i32 : BitVec 32 := 15#32
  let v38 : BitVec 1 := Scalar.cmpi .sgt v21 c15_i32
  let v39 : BitVec 32 := Scalar.extui v38
  let c0_i32_25 : BitVec 32 := 0#32
  let v40 : BitVec 1 := Scalar.cmpi .ne v39 c0_i32_25
  v40

def k17_off13 (i : grid17.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c480_i32 : BitVec 32 := 480#32
  let v41 : BitVec 32 := Scalar.addi v1 c480_i32
  let c3200_i32_26 : BitVec 32 := 3200#32
  let v42 : BitVec 32 := Scalar.muli v41 c3200_i32_26
  ![v42.toNat]
abbrev grid18 : Pipeline.Grid := ⟨2, ![2, 16], ![false, false]⟩

def k18_off1 (i : grid18.Coords) (c0_i32_6 : BitVec 32) : Fin 2 → Nat :=
  let c18_i32 : BitVec 32 := 18#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v22 : BitVec 32 := Scalar.addi v1 c0_i32_6
  let c3200_i32 : BitVec 32 := 3200#32
  let v23 : BitVec 32 := Scalar.muli v22 c3200_i32
  ![18, v23.toNat]
@[reducible] def k18_t1_loop : Scf.Loop 32 :=
  let c0_i32_21 : BitVec 32 := 0#32
  let c8_i32 : BitVec 32 := 8#32
  let v34 : BitVec 32 := Scalar.addi c0_i32_21 c8_i32
  let c1_i32_22 : BitVec 32 := 1#32
  ⟨c0_i32_21, v34, c1_i32_22⟩
def k18_cond1 (k18_t1 : Fin k18_t1_loop.trips) : BitVec 1 :=
  let c0_i32_21 : BitVec 32 := 0#32
  let c1_i32_22 : BitVec 32 := 1#32
  let arg12 : BitVec 32 := Scf.iv c0_i32_21 c1_i32_22 k18_t1
  let c2_i32_26 : BitVec 32 := 2#32
  let v41 : BitVec 32 := Scalar.muli arg12 c2_i32_26
  let c2_i32_27 : BitVec 32 := 2#32
  let v42 : BitVec 1 := Scalar.cmpi .sge v41 c2_i32_27
  let v43 : BitVec 32 := Scalar.extui v42
  let c0_i32_28 : BitVec 32 := 0#32
  let v44 : BitVec 1 := Scalar.cmpi .ne v43 c0_i32_28
  v44

def k18_off2 (i : grid18.Coords) (k18_t1 : Fin k18_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_21 : BitVec 32 := 0#32
  let c1_i32_22 : BitVec 32 := 1#32
  let arg12 : BitVec 32 := Scf.iv c0_i32_21 c1_i32_22 k18_t1
  let c2_i32_26 : BitVec 32 := 2#32
  let v41 : BitVec 32 := Scalar.muli arg12 c2_i32_26
  let c2_i32_39 : BitVec 32 := 2#32
  let v64 : BitVec 32 := Scalar.subi v41 c2_i32_39
  let c32_i32_40 : BitVec 32 := 32#32
  let v65 : BitVec 32 := Scalar.muli v64 c32_i32_40
  let v66 : BitVec 32 := Scalar.addi v1 v65
  let c3200_i32_41 : BitVec 32 := 3200#32
  let v67 : BitVec 32 := Scalar.muli v66 c3200_i32_41
  ![v67.toNat]
def k18_cond2 (i : grid18.Coords) (k18_t1 : Fin k18_t1_loop.trips) : BitVec 1 :=
  let c0_i32_21 : BitVec 32 := 0#32
  let c1_i32_22 : BitVec 32 := 1#32
  let arg12 : BitVec 32 := Scf.iv c0_i32_21 c1_i32_22 k18_t1
  let c2_i32_26 : BitVec 32 := 2#32
  let v41 : BitVec 32 := Scalar.muli arg12 c2_i32_26
  let c500_i32 : BitVec 32 := 500#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v2 : BitVec 32 := Scalar.subi c500_i32 v1
  let c32_i32 : BitVec 32 := 32#32
  let v3 : BitVec 32 := Scalar.addi v2 c32_i32
  let c1_i32 : BitVec 32 := 1#32
  let v4 : BitVec 32 := Scalar.subi v3 c1_i32
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c32_i32_0 : BitVec 32 := 32#32
  let c0_i32_2 : BitVec 32 := 0#32
  let v11 : BitVec 1 := Scalar.cmpi .sgt c32_i32_0 c0_i32_2
  let v12 : BitVec 32 := Scalar.extui v11
  let c0_i32_3 : BitVec 32 := 0#32
  let v13 : BitVec 1 := Scalar.cmpi .slt c32_i32_0 c0_i32_3
  let v14 : BitVec 32 := Scalar.extui v13
  let v15 : BitVec 32 := Scalar.subi v12 v14
  let v16 : BitVec 1 := Scalar.cmpi .ne v10 v15
  let v17 : BitVec 32 := Scalar.remsi v4 c32_i32_0
  let c0_i32_4 : BitVec 32 := 0#32
  let v18 : BitVec 1 := Scalar.cmpi .ne v17 c0_i32_4
  let v19 : BitVec 1 := Scalar.andi v16 v18
  let v5 : BitVec 32 := Scalar.divsi v4 c32_i32_0
  let c1_i32_5 : BitVec 32 := 1#32
  let v20 : BitVec 32 := Scalar.subi v5 c1_i32_5
  let v21 : BitVec 32 := Scalar.select v19 v20 v5
  let v45 : BitVec 1 := Scalar.cmpi .slt v41 v21
  let v46 : BitVec 32 := Scalar.extui v45
  let c0_i32_29 : BitVec 32 := 0#32
  let v47 : BitVec 1 := Scalar.cmpi .ne v46 c0_i32_29
  v47

@[reducible] def k18_t2_loop : Scf.Loop 32 :=
  let c0_i32_48 : BitVec 32 := 0#32
  let c200_i32 : BitVec 32 := 200#32
  let v68 : BitVec 32 := Scalar.addi c0_i32_48 c200_i32
  let c1_i32_49 : BitVec 32 := 1#32
  ⟨c0_i32_48, v68, c1_i32_49⟩
def k18_off3 (k18_t2 : Fin k18_t2_loop.trips) : Fin 2 → Nat :=
  let c0_i32_55 : BitVec 32 := 0#32
  let v77 : Index := Scalar.indexCast c0_i32_55
  let c0_i32_48 : BitVec 32 := 0#32
  let c1_i32_49 : BitVec 32 := 1#32
  let arg13 : BitVec 32 := Scf.iv c0_i32_48 c1_i32_49 k18_t2
  let c16_i32 : BitVec 32 := 16#32
  let v76 : BitVec 32 := Scalar.muli arg13 c16_i32
  let v78 : Index := Scalar.indexCast v76
  ![0, v78.toNat]
def k18_off4 (k18_t2 : Fin k18_t2_loop.trips) : Fin 1 → Nat :=
  let c0_i32_57 : BitVec 32 := 0#32
  let c0_i32_48 : BitVec 32 := 0#32
  let c1_i32_49 : BitVec 32 := 1#32
  let arg13 : BitVec 32 := Scf.iv c0_i32_48 c1_i32_49 k18_t2
  let c16_i32_56 : BitVec 32 := 16#32
  let v80 : BitVec 32 := Scalar.muli arg13 c16_i32_56
  let v81 : BitVec 32 := Scalar.addi c0_i32_57 v80
  let v82 : Index := Scalar.indexCast v81
  ![v82.toNat]
def k18_off5 (i : grid18.Coords) (k18_t1 : Fin k18_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_21 : BitVec 32 := 0#32
  let c1_i32_22 : BitVec 32 := 1#32
  let arg12 : BitVec 32 := Scf.iv c0_i32_21 c1_i32_22 k18_t1
  let c2_i32_26 : BitVec 32 := 2#32
  let v41 : BitVec 32 := Scalar.muli arg12 c2_i32_26
  let c32_i32_51 : BitVec 32 := 32#32
  let v69 : BitVec 32 := Scalar.muli v41 c32_i32_51
  let v70 : BitVec 32 := Scalar.addi v1 v69
  let c3200_i32_52 : BitVec 32 := 3200#32
  let v71 : BitVec 32 := Scalar.muli v70 c3200_i32_52
  ![v71.toNat]
def k18_cond3 (i : grid18.Coords) (k18_t1 : Fin k18_t1_loop.trips) : BitVec 1 :=
  let c0_i32_21 : BitVec 32 := 0#32
  let c1_i32_22 : BitVec 32 := 1#32
  let arg12 : BitVec 32 := Scf.iv c0_i32_21 c1_i32_22 k18_t1
  let c2_i32_26 : BitVec 32 := 2#32
  let v41 : BitVec 32 := Scalar.muli arg12 c2_i32_26
  let c2_i32_30 : BitVec 32 := 2#32
  let v48 : BitVec 32 := Scalar.addi v41 c2_i32_30
  let c500_i32 : BitVec 32 := 500#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v2 : BitVec 32 := Scalar.subi c500_i32 v1
  let c32_i32 : BitVec 32 := 32#32
  let v3 : BitVec 32 := Scalar.addi v2 c32_i32
  let c1_i32 : BitVec 32 := 1#32
  let v4 : BitVec 32 := Scalar.subi v3 c1_i32
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c32_i32_0 : BitVec 32 := 32#32
  let c0_i32_2 : BitVec 32 := 0#32
  let v11 : BitVec 1 := Scalar.cmpi .sgt c32_i32_0 c0_i32_2
  let v12 : BitVec 32 := Scalar.extui v11
  let c0_i32_3 : BitVec 32 := 0#32
  let v13 : BitVec 1 := Scalar.cmpi .slt c32_i32_0 c0_i32_3
  let v14 : BitVec 32 := Scalar.extui v13
  let v15 : BitVec 32 := Scalar.subi v12 v14
  let v16 : BitVec 1 := Scalar.cmpi .ne v10 v15
  let v17 : BitVec 32 := Scalar.remsi v4 c32_i32_0
  let c0_i32_4 : BitVec 32 := 0#32
  let v18 : BitVec 1 := Scalar.cmpi .ne v17 c0_i32_4
  let v19 : BitVec 1 := Scalar.andi v16 v18
  let v5 : BitVec 32 := Scalar.divsi v4 c32_i32_0
  let c1_i32_5 : BitVec 32 := 1#32
  let v20 : BitVec 32 := Scalar.subi v5 c1_i32_5
  let v21 : BitVec 32 := Scalar.select v19 v20 v5
  let v49 : BitVec 1 := Scalar.cmpi .slt v48 v21
  let v50 : BitVec 32 := Scalar.extui v49
  let c0_i32_31 : BitVec 32 := 0#32
  let v51 : BitVec 1 := Scalar.cmpi .ne v50 c0_i32_31
  v51

def k18_off6 (i : grid18.Coords) (k18_t1 : Fin k18_t1_loop.trips) : Fin 2 → Nat :=
  let c18_i32_44 : BitVec 32 := 18#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_21 : BitVec 32 := 0#32
  let c1_i32_22 : BitVec 32 := 1#32
  let arg12 : BitVec 32 := Scf.iv c0_i32_21 c1_i32_22 k18_t1
  let c2_i32_26 : BitVec 32 := 2#32
  let v41 : BitVec 32 := Scalar.muli arg12 c2_i32_26
  let c2_i32_39 : BitVec 32 := 2#32
  let v64 : BitVec 32 := Scalar.addi v41 c2_i32_39
  let c32_i32_40 : BitVec 32 := 32#32
  let v65 : BitVec 32 := Scalar.muli v64 c32_i32_40
  let v66 : BitVec 32 := Scalar.addi v1 v65
  let c3200_i32_41 : BitVec 32 := 3200#32
  let v67 : BitVec 32 := Scalar.muli v66 c3200_i32_41
  ![18, v67.toNat]
def k18_cond4 (k18_t1 : Fin k18_t1_loop.trips) : BitVec 1 :=
  let c0_i32_21 : BitVec 32 := 0#32
  let c1_i32_22 : BitVec 32 := 1#32
  let arg12 : BitVec 32 := Scf.iv c0_i32_21 c1_i32_22 k18_t1
  let c2_i32_32 : BitVec 32 := 2#32
  let v52 : BitVec 32 := Scalar.muli arg12 c2_i32_32
  let c1_i32_33 : BitVec 32 := 1#32
  let v53 : BitVec 32 := Scalar.addi v52 c1_i32_33
  let c2_i32_34 : BitVec 32 := 2#32
  let v54 : BitVec 1 := Scalar.cmpi .sge v53 c2_i32_34
  let v55 : BitVec 32 := Scalar.extui v54
  let c0_i32_35 : BitVec 32 := 0#32
  let v56 : BitVec 1 := Scalar.cmpi .ne v55 c0_i32_35
  v56

def k18_off7 (i : grid18.Coords) (k18_t1 : Fin k18_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_21 : BitVec 32 := 0#32
  let c1_i32_22 : BitVec 32 := 1#32
  let arg12 : BitVec 32 := Scf.iv c0_i32_21 c1_i32_22 k18_t1
  let c2_i32_32 : BitVec 32 := 2#32
  let v52 : BitVec 32 := Scalar.muli arg12 c2_i32_32
  let c1_i32_33 : BitVec 32 := 1#32
  let v53 : BitVec 32 := Scalar.addi v52 c1_i32_33
  let c2_i32_39 : BitVec 32 := 2#32
  let v64 : BitVec 32 := Scalar.subi v53 c2_i32_39
  let c32_i32_40 : BitVec 32 := 32#32
  let v65 : BitVec 32 := Scalar.muli v64 c32_i32_40
  let v66 : BitVec 32 := Scalar.addi v1 v65
  let c3200_i32_41 : BitVec 32 := 3200#32
  let v67 : BitVec 32 := Scalar.muli v66 c3200_i32_41
  ![v67.toNat]
def k18_cond5 (i : grid18.Coords) (k18_t1 : Fin k18_t1_loop.trips) : BitVec 1 :=
  let c0_i32_21 : BitVec 32 := 0#32
  let c1_i32_22 : BitVec 32 := 1#32
  let arg12 : BitVec 32 := Scf.iv c0_i32_21 c1_i32_22 k18_t1
  let c2_i32_32 : BitVec 32 := 2#32
  let v52 : BitVec 32 := Scalar.muli arg12 c2_i32_32
  let c1_i32_33 : BitVec 32 := 1#32
  let v53 : BitVec 32 := Scalar.addi v52 c1_i32_33
  let c500_i32 : BitVec 32 := 500#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v2 : BitVec 32 := Scalar.subi c500_i32 v1
  let c32_i32 : BitVec 32 := 32#32
  let v3 : BitVec 32 := Scalar.addi v2 c32_i32
  let c1_i32 : BitVec 32 := 1#32
  let v4 : BitVec 32 := Scalar.subi v3 c1_i32
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c32_i32_0 : BitVec 32 := 32#32
  let c0_i32_2 : BitVec 32 := 0#32
  let v11 : BitVec 1 := Scalar.cmpi .sgt c32_i32_0 c0_i32_2
  let v12 : BitVec 32 := Scalar.extui v11
  let c0_i32_3 : BitVec 32 := 0#32
  let v13 : BitVec 1 := Scalar.cmpi .slt c32_i32_0 c0_i32_3
  let v14 : BitVec 32 := Scalar.extui v13
  let v15 : BitVec 32 := Scalar.subi v12 v14
  let v16 : BitVec 1 := Scalar.cmpi .ne v10 v15
  let v17 : BitVec 32 := Scalar.remsi v4 c32_i32_0
  let c0_i32_4 : BitVec 32 := 0#32
  let v18 : BitVec 1 := Scalar.cmpi .ne v17 c0_i32_4
  let v19 : BitVec 1 := Scalar.andi v16 v18
  let v5 : BitVec 32 := Scalar.divsi v4 c32_i32_0
  let c1_i32_5 : BitVec 32 := 1#32
  let v20 : BitVec 32 := Scalar.subi v5 c1_i32_5
  let v21 : BitVec 32 := Scalar.select v19 v20 v5
  let v57 : BitVec 1 := Scalar.cmpi .slt v53 v21
  let v58 : BitVec 32 := Scalar.extui v57
  let c0_i32_36 : BitVec 32 := 0#32
  let v59 : BitVec 1 := Scalar.cmpi .ne v58 c0_i32_36
  v59

@[reducible] def k18_t3_loop : Scf.Loop 32 :=
  let c0_i32_48 : BitVec 32 := 0#32
  let c200_i32 : BitVec 32 := 200#32
  let v68 : BitVec 32 := Scalar.addi c0_i32_48 c200_i32
  let c1_i32_49 : BitVec 32 := 1#32
  ⟨c0_i32_48, v68, c1_i32_49⟩
def k18_off8 (k18_t3 : Fin k18_t3_loop.trips) : Fin 2 → Nat :=
  let c0_i32_55 : BitVec 32 := 0#32
  let v77 : Index := Scalar.indexCast c0_i32_55
  let c0_i32_48 : BitVec 32 := 0#32
  let c1_i32_49 : BitVec 32 := 1#32
  let arg13 : BitVec 32 := Scf.iv c0_i32_48 c1_i32_49 k18_t3
  let c16_i32 : BitVec 32 := 16#32
  let v76 : BitVec 32 := Scalar.muli arg13 c16_i32
  let v78 : Index := Scalar.indexCast v76
  ![0, v78.toNat]
def k18_off9 (k18_t3 : Fin k18_t3_loop.trips) : Fin 1 → Nat :=
  let c0_i32_57 : BitVec 32 := 0#32
  let c0_i32_48 : BitVec 32 := 0#32
  let c1_i32_49 : BitVec 32 := 1#32
  let arg13 : BitVec 32 := Scf.iv c0_i32_48 c1_i32_49 k18_t3
  let c16_i32_56 : BitVec 32 := 16#32
  let v80 : BitVec 32 := Scalar.muli arg13 c16_i32_56
  let v81 : BitVec 32 := Scalar.addi c0_i32_57 v80
  let v82 : Index := Scalar.indexCast v81
  ![v82.toNat]
def k18_off10 (i : grid18.Coords) (k18_t1 : Fin k18_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_21 : BitVec 32 := 0#32
  let c1_i32_22 : BitVec 32 := 1#32
  let arg12 : BitVec 32 := Scf.iv c0_i32_21 c1_i32_22 k18_t1
  let c2_i32_32 : BitVec 32 := 2#32
  let v52 : BitVec 32 := Scalar.muli arg12 c2_i32_32
  let c1_i32_33 : BitVec 32 := 1#32
  let v53 : BitVec 32 := Scalar.addi v52 c1_i32_33
  let c32_i32_51 : BitVec 32 := 32#32
  let v69 : BitVec 32 := Scalar.muli v53 c32_i32_51
  let v70 : BitVec 32 := Scalar.addi v1 v69
  let c3200_i32_52 : BitVec 32 := 3200#32
  let v71 : BitVec 32 := Scalar.muli v70 c3200_i32_52
  ![v71.toNat]
def k18_cond6 (i : grid18.Coords) (k18_t1 : Fin k18_t1_loop.trips) : BitVec 1 :=
  let c0_i32_21 : BitVec 32 := 0#32
  let c1_i32_22 : BitVec 32 := 1#32
  let arg12 : BitVec 32 := Scf.iv c0_i32_21 c1_i32_22 k18_t1
  let c2_i32_32 : BitVec 32 := 2#32
  let v52 : BitVec 32 := Scalar.muli arg12 c2_i32_32
  let c1_i32_33 : BitVec 32 := 1#32
  let v53 : BitVec 32 := Scalar.addi v52 c1_i32_33
  let c2_i32_37 : BitVec 32 := 2#32
  let v60 : BitVec 32 := Scalar.addi v53 c2_i32_37
  let c500_i32 : BitVec 32 := 500#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v2 : BitVec 32 := Scalar.subi c500_i32 v1
  let c32_i32 : BitVec 32 := 32#32
  let v3 : BitVec 32 := Scalar.addi v2 c32_i32
  let c1_i32 : BitVec 32 := 1#32
  let v4 : BitVec 32 := Scalar.subi v3 c1_i32
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c32_i32_0 : BitVec 32 := 32#32
  let c0_i32_2 : BitVec 32 := 0#32
  let v11 : BitVec 1 := Scalar.cmpi .sgt c32_i32_0 c0_i32_2
  let v12 : BitVec 32 := Scalar.extui v11
  let c0_i32_3 : BitVec 32 := 0#32
  let v13 : BitVec 1 := Scalar.cmpi .slt c32_i32_0 c0_i32_3
  let v14 : BitVec 32 := Scalar.extui v13
  let v15 : BitVec 32 := Scalar.subi v12 v14
  let v16 : BitVec 1 := Scalar.cmpi .ne v10 v15
  let v17 : BitVec 32 := Scalar.remsi v4 c32_i32_0
  let c0_i32_4 : BitVec 32 := 0#32
  let v18 : BitVec 1 := Scalar.cmpi .ne v17 c0_i32_4
  let v19 : BitVec 1 := Scalar.andi v16 v18
  let v5 : BitVec 32 := Scalar.divsi v4 c32_i32_0
  let c1_i32_5 : BitVec 32 := 1#32
  let v20 : BitVec 32 := Scalar.subi v5 c1_i32_5
  let v21 : BitVec 32 := Scalar.select v19 v20 v5
  let v61 : BitVec 1 := Scalar.cmpi .slt v60 v21
  let v62 : BitVec 32 := Scalar.extui v61
  let c0_i32_38 : BitVec 32 := 0#32
  let v63 : BitVec 1 := Scalar.cmpi .ne v62 c0_i32_38
  v63

def k18_off11 (i : grid18.Coords) (k18_t1 : Fin k18_t1_loop.trips) : Fin 2 → Nat :=
  let c18_i32_44 : BitVec 32 := 18#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_21 : BitVec 32 := 0#32
  let c1_i32_22 : BitVec 32 := 1#32
  let arg12 : BitVec 32 := Scf.iv c0_i32_21 c1_i32_22 k18_t1
  let c2_i32_32 : BitVec 32 := 2#32
  let v52 : BitVec 32 := Scalar.muli arg12 c2_i32_32
  let c1_i32_33 : BitVec 32 := 1#32
  let v53 : BitVec 32 := Scalar.addi v52 c1_i32_33
  let c2_i32_39 : BitVec 32 := 2#32
  let v64 : BitVec 32 := Scalar.addi v53 c2_i32_39
  let c32_i32_40 : BitVec 32 := 32#32
  let v65 : BitVec 32 := Scalar.muli v64 c32_i32_40
  let v66 : BitVec 32 := Scalar.addi v1 v65
  let c3200_i32_41 : BitVec 32 := 3200#32
  let v67 : BitVec 32 := Scalar.muli v66 c3200_i32_41
  ![18, v67.toNat]
def k18_cond7 (i : grid18.Coords) : BitVec 1 :=
  let c500_i32 : BitVec 32 := 500#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v2 : BitVec 32 := Scalar.subi c500_i32 v1
  let c32_i32 : BitVec 32 := 32#32
  let v3 : BitVec 32 := Scalar.addi v2 c32_i32
  let c1_i32 : BitVec 32 := 1#32
  let v4 : BitVec 32 := Scalar.subi v3 c1_i32
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c32_i32_0 : BitVec 32 := 32#32
  let c0_i32_2 : BitVec 32 := 0#32
  let v11 : BitVec 1 := Scalar.cmpi .sgt c32_i32_0 c0_i32_2
  let v12 : BitVec 32 := Scalar.extui v11
  let c0_i32_3 : BitVec 32 := 0#32
  let v13 : BitVec 1 := Scalar.cmpi .slt c32_i32_0 c0_i32_3
  let v14 : BitVec 32 := Scalar.extui v13
  let v15 : BitVec 32 := Scalar.subi v12 v14
  let v16 : BitVec 1 := Scalar.cmpi .ne v10 v15
  let v17 : BitVec 32 := Scalar.remsi v4 c32_i32_0
  let c0_i32_4 : BitVec 32 := 0#32
  let v18 : BitVec 1 := Scalar.cmpi .ne v17 c0_i32_4
  let v19 : BitVec 1 := Scalar.andi v16 v18
  let v5 : BitVec 32 := Scalar.divsi v4 c32_i32_0
  let c1_i32_5 : BitVec 32 := 1#32
  let v20 : BitVec 32 := Scalar.subi v5 c1_i32_5
  let v21 : BitVec 32 := Scalar.select v19 v20 v5
  let c14_i32 : BitVec 32 := 14#32
  let v35 : BitVec 1 := Scalar.cmpi .sgt v21 c14_i32
  let v36 : BitVec 32 := Scalar.extui v35
  let c0_i32_24 : BitVec 32 := 0#32
  let v37 : BitVec 1 := Scalar.cmpi .ne v36 c0_i32_24
  v37

def k18_off12 (i : grid18.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c448_i32 : BitVec 32 := 448#32
  let v41 : BitVec 32 := Scalar.addi v1 c448_i32
  let c3200_i32_26 : BitVec 32 := 3200#32
  let v42 : BitVec 32 := Scalar.muli v41 c3200_i32_26
  ![v42.toNat]
def k18_cond8 (i : grid18.Coords) : BitVec 1 :=
  let c500_i32 : BitVec 32 := 500#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v2 : BitVec 32 := Scalar.subi c500_i32 v1
  let c32_i32 : BitVec 32 := 32#32
  let v3 : BitVec 32 := Scalar.addi v2 c32_i32
  let c1_i32 : BitVec 32 := 1#32
  let v4 : BitVec 32 := Scalar.subi v3 c1_i32
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c32_i32_0 : BitVec 32 := 32#32
  let c0_i32_2 : BitVec 32 := 0#32
  let v11 : BitVec 1 := Scalar.cmpi .sgt c32_i32_0 c0_i32_2
  let v12 : BitVec 32 := Scalar.extui v11
  let c0_i32_3 : BitVec 32 := 0#32
  let v13 : BitVec 1 := Scalar.cmpi .slt c32_i32_0 c0_i32_3
  let v14 : BitVec 32 := Scalar.extui v13
  let v15 : BitVec 32 := Scalar.subi v12 v14
  let v16 : BitVec 1 := Scalar.cmpi .ne v10 v15
  let v17 : BitVec 32 := Scalar.remsi v4 c32_i32_0
  let c0_i32_4 : BitVec 32 := 0#32
  let v18 : BitVec 1 := Scalar.cmpi .ne v17 c0_i32_4
  let v19 : BitVec 1 := Scalar.andi v16 v18
  let v5 : BitVec 32 := Scalar.divsi v4 c32_i32_0
  let c1_i32_5 : BitVec 32 := 1#32
  let v20 : BitVec 32 := Scalar.subi v5 c1_i32_5
  let v21 : BitVec 32 := Scalar.select v19 v20 v5
  let c15_i32 : BitVec 32 := 15#32
  let v38 : BitVec 1 := Scalar.cmpi .sgt v21 c15_i32
  let v39 : BitVec 32 := Scalar.extui v38
  let c0_i32_25 : BitVec 32 := 0#32
  let v40 : BitVec 1 := Scalar.cmpi .ne v39 c0_i32_25
  v40

def k18_off13 (i : grid18.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c480_i32 : BitVec 32 := 480#32
  let v41 : BitVec 32 := Scalar.addi v1 c480_i32
  let c3200_i32_26 : BitVec 32 := 3200#32
  let v42 : BitVec 32 := Scalar.muli v41 c3200_i32_26
  ![v42.toNat]
abbrev grid19 : Pipeline.Grid := ⟨2, ![2, 16], ![false, false]⟩

def k19_off1 (i : grid19.Coords) (c0_i32_6 : BitVec 32) : Fin 2 → Nat :=
  let c19_i32 : BitVec 32 := 19#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v22 : BitVec 32 := Scalar.addi v1 c0_i32_6
  let c3200_i32 : BitVec 32 := 3200#32
  let v23 : BitVec 32 := Scalar.muli v22 c3200_i32
  ![19, v23.toNat]
@[reducible] def k19_t1_loop : Scf.Loop 32 :=
  let c0_i32_21 : BitVec 32 := 0#32
  let c8_i32 : BitVec 32 := 8#32
  let v34 : BitVec 32 := Scalar.addi c0_i32_21 c8_i32
  let c1_i32_22 : BitVec 32 := 1#32
  ⟨c0_i32_21, v34, c1_i32_22⟩
def k19_cond1 (k19_t1 : Fin k19_t1_loop.trips) : BitVec 1 :=
  let c0_i32_21 : BitVec 32 := 0#32
  let c1_i32_22 : BitVec 32 := 1#32
  let arg12 : BitVec 32 := Scf.iv c0_i32_21 c1_i32_22 k19_t1
  let c2_i32_26 : BitVec 32 := 2#32
  let v41 : BitVec 32 := Scalar.muli arg12 c2_i32_26
  let c2_i32_27 : BitVec 32 := 2#32
  let v42 : BitVec 1 := Scalar.cmpi .sge v41 c2_i32_27
  let v43 : BitVec 32 := Scalar.extui v42
  let c0_i32_28 : BitVec 32 := 0#32
  let v44 : BitVec 1 := Scalar.cmpi .ne v43 c0_i32_28
  v44

def k19_off2 (i : grid19.Coords) (k19_t1 : Fin k19_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_21 : BitVec 32 := 0#32
  let c1_i32_22 : BitVec 32 := 1#32
  let arg12 : BitVec 32 := Scf.iv c0_i32_21 c1_i32_22 k19_t1
  let c2_i32_26 : BitVec 32 := 2#32
  let v41 : BitVec 32 := Scalar.muli arg12 c2_i32_26
  let c2_i32_39 : BitVec 32 := 2#32
  let v64 : BitVec 32 := Scalar.subi v41 c2_i32_39
  let c32_i32_40 : BitVec 32 := 32#32
  let v65 : BitVec 32 := Scalar.muli v64 c32_i32_40
  let v66 : BitVec 32 := Scalar.addi v1 v65
  let c3200_i32_41 : BitVec 32 := 3200#32
  let v67 : BitVec 32 := Scalar.muli v66 c3200_i32_41
  ![v67.toNat]
def k19_cond2 (i : grid19.Coords) (k19_t1 : Fin k19_t1_loop.trips) : BitVec 1 :=
  let c0_i32_21 : BitVec 32 := 0#32
  let c1_i32_22 : BitVec 32 := 1#32
  let arg12 : BitVec 32 := Scf.iv c0_i32_21 c1_i32_22 k19_t1
  let c2_i32_26 : BitVec 32 := 2#32
  let v41 : BitVec 32 := Scalar.muli arg12 c2_i32_26
  let c500_i32 : BitVec 32 := 500#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v2 : BitVec 32 := Scalar.subi c500_i32 v1
  let c32_i32 : BitVec 32 := 32#32
  let v3 : BitVec 32 := Scalar.addi v2 c32_i32
  let c1_i32 : BitVec 32 := 1#32
  let v4 : BitVec 32 := Scalar.subi v3 c1_i32
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c32_i32_0 : BitVec 32 := 32#32
  let c0_i32_2 : BitVec 32 := 0#32
  let v11 : BitVec 1 := Scalar.cmpi .sgt c32_i32_0 c0_i32_2
  let v12 : BitVec 32 := Scalar.extui v11
  let c0_i32_3 : BitVec 32 := 0#32
  let v13 : BitVec 1 := Scalar.cmpi .slt c32_i32_0 c0_i32_3
  let v14 : BitVec 32 := Scalar.extui v13
  let v15 : BitVec 32 := Scalar.subi v12 v14
  let v16 : BitVec 1 := Scalar.cmpi .ne v10 v15
  let v17 : BitVec 32 := Scalar.remsi v4 c32_i32_0
  let c0_i32_4 : BitVec 32 := 0#32
  let v18 : BitVec 1 := Scalar.cmpi .ne v17 c0_i32_4
  let v19 : BitVec 1 := Scalar.andi v16 v18
  let v5 : BitVec 32 := Scalar.divsi v4 c32_i32_0
  let c1_i32_5 : BitVec 32 := 1#32
  let v20 : BitVec 32 := Scalar.subi v5 c1_i32_5
  let v21 : BitVec 32 := Scalar.select v19 v20 v5
  let v45 : BitVec 1 := Scalar.cmpi .slt v41 v21
  let v46 : BitVec 32 := Scalar.extui v45
  let c0_i32_29 : BitVec 32 := 0#32
  let v47 : BitVec 1 := Scalar.cmpi .ne v46 c0_i32_29
  v47

@[reducible] def k19_t2_loop : Scf.Loop 32 :=
  let c0_i32_48 : BitVec 32 := 0#32
  let c200_i32 : BitVec 32 := 200#32
  let v68 : BitVec 32 := Scalar.addi c0_i32_48 c200_i32
  let c1_i32_49 : BitVec 32 := 1#32
  ⟨c0_i32_48, v68, c1_i32_49⟩
def k19_off3 (k19_t2 : Fin k19_t2_loop.trips) : Fin 2 → Nat :=
  let c0_i32_55 : BitVec 32 := 0#32
  let v77 : Index := Scalar.indexCast c0_i32_55
  let c0_i32_48 : BitVec 32 := 0#32
  let c1_i32_49 : BitVec 32 := 1#32
  let arg13 : BitVec 32 := Scf.iv c0_i32_48 c1_i32_49 k19_t2
  let c16_i32 : BitVec 32 := 16#32
  let v76 : BitVec 32 := Scalar.muli arg13 c16_i32
  let v78 : Index := Scalar.indexCast v76
  ![0, v78.toNat]
def k19_off4 (k19_t2 : Fin k19_t2_loop.trips) : Fin 1 → Nat :=
  let c0_i32_57 : BitVec 32 := 0#32
  let c0_i32_48 : BitVec 32 := 0#32
  let c1_i32_49 : BitVec 32 := 1#32
  let arg13 : BitVec 32 := Scf.iv c0_i32_48 c1_i32_49 k19_t2
  let c16_i32_56 : BitVec 32 := 16#32
  let v80 : BitVec 32 := Scalar.muli arg13 c16_i32_56
  let v81 : BitVec 32 := Scalar.addi c0_i32_57 v80
  let v82 : Index := Scalar.indexCast v81
  ![v82.toNat]
def k19_off5 (i : grid19.Coords) (k19_t1 : Fin k19_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_21 : BitVec 32 := 0#32
  let c1_i32_22 : BitVec 32 := 1#32
  let arg12 : BitVec 32 := Scf.iv c0_i32_21 c1_i32_22 k19_t1
  let c2_i32_26 : BitVec 32 := 2#32
  let v41 : BitVec 32 := Scalar.muli arg12 c2_i32_26
  let c32_i32_51 : BitVec 32 := 32#32
  let v69 : BitVec 32 := Scalar.muli v41 c32_i32_51
  let v70 : BitVec 32 := Scalar.addi v1 v69
  let c3200_i32_52 : BitVec 32 := 3200#32
  let v71 : BitVec 32 := Scalar.muli v70 c3200_i32_52
  ![v71.toNat]
def k19_cond3 (i : grid19.Coords) (k19_t1 : Fin k19_t1_loop.trips) : BitVec 1 :=
  let c0_i32_21 : BitVec 32 := 0#32
  let c1_i32_22 : BitVec 32 := 1#32
  let arg12 : BitVec 32 := Scf.iv c0_i32_21 c1_i32_22 k19_t1
  let c2_i32_26 : BitVec 32 := 2#32
  let v41 : BitVec 32 := Scalar.muli arg12 c2_i32_26
  let c2_i32_30 : BitVec 32 := 2#32
  let v48 : BitVec 32 := Scalar.addi v41 c2_i32_30
  let c500_i32 : BitVec 32 := 500#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v2 : BitVec 32 := Scalar.subi c500_i32 v1
  let c32_i32 : BitVec 32 := 32#32
  let v3 : BitVec 32 := Scalar.addi v2 c32_i32
  let c1_i32 : BitVec 32 := 1#32
  let v4 : BitVec 32 := Scalar.subi v3 c1_i32
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c32_i32_0 : BitVec 32 := 32#32
  let c0_i32_2 : BitVec 32 := 0#32
  let v11 : BitVec 1 := Scalar.cmpi .sgt c32_i32_0 c0_i32_2
  let v12 : BitVec 32 := Scalar.extui v11
  let c0_i32_3 : BitVec 32 := 0#32
  let v13 : BitVec 1 := Scalar.cmpi .slt c32_i32_0 c0_i32_3
  let v14 : BitVec 32 := Scalar.extui v13
  let v15 : BitVec 32 := Scalar.subi v12 v14
  let v16 : BitVec 1 := Scalar.cmpi .ne v10 v15
  let v17 : BitVec 32 := Scalar.remsi v4 c32_i32_0
  let c0_i32_4 : BitVec 32 := 0#32
  let v18 : BitVec 1 := Scalar.cmpi .ne v17 c0_i32_4
  let v19 : BitVec 1 := Scalar.andi v16 v18
  let v5 : BitVec 32 := Scalar.divsi v4 c32_i32_0
  let c1_i32_5 : BitVec 32 := 1#32
  let v20 : BitVec 32 := Scalar.subi v5 c1_i32_5
  let v21 : BitVec 32 := Scalar.select v19 v20 v5
  let v49 : BitVec 1 := Scalar.cmpi .slt v48 v21
  let v50 : BitVec 32 := Scalar.extui v49
  let c0_i32_31 : BitVec 32 := 0#32
  let v51 : BitVec 1 := Scalar.cmpi .ne v50 c0_i32_31
  v51

def k19_off6 (i : grid19.Coords) (k19_t1 : Fin k19_t1_loop.trips) : Fin 2 → Nat :=
  let c19_i32_44 : BitVec 32 := 19#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_21 : BitVec 32 := 0#32
  let c1_i32_22 : BitVec 32 := 1#32
  let arg12 : BitVec 32 := Scf.iv c0_i32_21 c1_i32_22 k19_t1
  let c2_i32_26 : BitVec 32 := 2#32
  let v41 : BitVec 32 := Scalar.muli arg12 c2_i32_26
  let c2_i32_39 : BitVec 32 := 2#32
  let v64 : BitVec 32 := Scalar.addi v41 c2_i32_39
  let c32_i32_40 : BitVec 32 := 32#32
  let v65 : BitVec 32 := Scalar.muli v64 c32_i32_40
  let v66 : BitVec 32 := Scalar.addi v1 v65
  let c3200_i32_41 : BitVec 32 := 3200#32
  let v67 : BitVec 32 := Scalar.muli v66 c3200_i32_41
  ![19, v67.toNat]
def k19_cond4 (k19_t1 : Fin k19_t1_loop.trips) : BitVec 1 :=
  let c0_i32_21 : BitVec 32 := 0#32
  let c1_i32_22 : BitVec 32 := 1#32
  let arg12 : BitVec 32 := Scf.iv c0_i32_21 c1_i32_22 k19_t1
  let c2_i32_32 : BitVec 32 := 2#32
  let v52 : BitVec 32 := Scalar.muli arg12 c2_i32_32
  let c1_i32_33 : BitVec 32 := 1#32
  let v53 : BitVec 32 := Scalar.addi v52 c1_i32_33
  let c2_i32_34 : BitVec 32 := 2#32
  let v54 : BitVec 1 := Scalar.cmpi .sge v53 c2_i32_34
  let v55 : BitVec 32 := Scalar.extui v54
  let c0_i32_35 : BitVec 32 := 0#32
  let v56 : BitVec 1 := Scalar.cmpi .ne v55 c0_i32_35
  v56

def k19_off7 (i : grid19.Coords) (k19_t1 : Fin k19_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_21 : BitVec 32 := 0#32
  let c1_i32_22 : BitVec 32 := 1#32
  let arg12 : BitVec 32 := Scf.iv c0_i32_21 c1_i32_22 k19_t1
  let c2_i32_32 : BitVec 32 := 2#32
  let v52 : BitVec 32 := Scalar.muli arg12 c2_i32_32
  let c1_i32_33 : BitVec 32 := 1#32
  let v53 : BitVec 32 := Scalar.addi v52 c1_i32_33
  let c2_i32_39 : BitVec 32 := 2#32
  let v64 : BitVec 32 := Scalar.subi v53 c2_i32_39
  let c32_i32_40 : BitVec 32 := 32#32
  let v65 : BitVec 32 := Scalar.muli v64 c32_i32_40
  let v66 : BitVec 32 := Scalar.addi v1 v65
  let c3200_i32_41 : BitVec 32 := 3200#32
  let v67 : BitVec 32 := Scalar.muli v66 c3200_i32_41
  ![v67.toNat]
def k19_cond5 (i : grid19.Coords) (k19_t1 : Fin k19_t1_loop.trips) : BitVec 1 :=
  let c0_i32_21 : BitVec 32 := 0#32
  let c1_i32_22 : BitVec 32 := 1#32
  let arg12 : BitVec 32 := Scf.iv c0_i32_21 c1_i32_22 k19_t1
  let c2_i32_32 : BitVec 32 := 2#32
  let v52 : BitVec 32 := Scalar.muli arg12 c2_i32_32
  let c1_i32_33 : BitVec 32 := 1#32
  let v53 : BitVec 32 := Scalar.addi v52 c1_i32_33
  let c500_i32 : BitVec 32 := 500#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v2 : BitVec 32 := Scalar.subi c500_i32 v1
  let c32_i32 : BitVec 32 := 32#32
  let v3 : BitVec 32 := Scalar.addi v2 c32_i32
  let c1_i32 : BitVec 32 := 1#32
  let v4 : BitVec 32 := Scalar.subi v3 c1_i32
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c32_i32_0 : BitVec 32 := 32#32
  let c0_i32_2 : BitVec 32 := 0#32
  let v11 : BitVec 1 := Scalar.cmpi .sgt c32_i32_0 c0_i32_2
  let v12 : BitVec 32 := Scalar.extui v11
  let c0_i32_3 : BitVec 32 := 0#32
  let v13 : BitVec 1 := Scalar.cmpi .slt c32_i32_0 c0_i32_3
  let v14 : BitVec 32 := Scalar.extui v13
  let v15 : BitVec 32 := Scalar.subi v12 v14
  let v16 : BitVec 1 := Scalar.cmpi .ne v10 v15
  let v17 : BitVec 32 := Scalar.remsi v4 c32_i32_0
  let c0_i32_4 : BitVec 32 := 0#32
  let v18 : BitVec 1 := Scalar.cmpi .ne v17 c0_i32_4
  let v19 : BitVec 1 := Scalar.andi v16 v18
  let v5 : BitVec 32 := Scalar.divsi v4 c32_i32_0
  let c1_i32_5 : BitVec 32 := 1#32
  let v20 : BitVec 32 := Scalar.subi v5 c1_i32_5
  let v21 : BitVec 32 := Scalar.select v19 v20 v5
  let v57 : BitVec 1 := Scalar.cmpi .slt v53 v21
  let v58 : BitVec 32 := Scalar.extui v57
  let c0_i32_36 : BitVec 32 := 0#32
  let v59 : BitVec 1 := Scalar.cmpi .ne v58 c0_i32_36
  v59

@[reducible] def k19_t3_loop : Scf.Loop 32 :=
  let c0_i32_48 : BitVec 32 := 0#32
  let c200_i32 : BitVec 32 := 200#32
  let v68 : BitVec 32 := Scalar.addi c0_i32_48 c200_i32
  let c1_i32_49 : BitVec 32 := 1#32
  ⟨c0_i32_48, v68, c1_i32_49⟩
def k19_off8 (k19_t3 : Fin k19_t3_loop.trips) : Fin 2 → Nat :=
  let c0_i32_55 : BitVec 32 := 0#32
  let v77 : Index := Scalar.indexCast c0_i32_55
  let c0_i32_48 : BitVec 32 := 0#32
  let c1_i32_49 : BitVec 32 := 1#32
  let arg13 : BitVec 32 := Scf.iv c0_i32_48 c1_i32_49 k19_t3
  let c16_i32 : BitVec 32 := 16#32
  let v76 : BitVec 32 := Scalar.muli arg13 c16_i32
  let v78 : Index := Scalar.indexCast v76
  ![0, v78.toNat]
def k19_off9 (k19_t3 : Fin k19_t3_loop.trips) : Fin 1 → Nat :=
  let c0_i32_57 : BitVec 32 := 0#32
  let c0_i32_48 : BitVec 32 := 0#32
  let c1_i32_49 : BitVec 32 := 1#32
  let arg13 : BitVec 32 := Scf.iv c0_i32_48 c1_i32_49 k19_t3
  let c16_i32_56 : BitVec 32 := 16#32
  let v80 : BitVec 32 := Scalar.muli arg13 c16_i32_56
  let v81 : BitVec 32 := Scalar.addi c0_i32_57 v80
  let v82 : Index := Scalar.indexCast v81
  ![v82.toNat]
def k19_off10 (i : grid19.Coords) (k19_t1 : Fin k19_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_21 : BitVec 32 := 0#32
  let c1_i32_22 : BitVec 32 := 1#32
  let arg12 : BitVec 32 := Scf.iv c0_i32_21 c1_i32_22 k19_t1
  let c2_i32_32 : BitVec 32 := 2#32
  let v52 : BitVec 32 := Scalar.muli arg12 c2_i32_32
  let c1_i32_33 : BitVec 32 := 1#32
  let v53 : BitVec 32 := Scalar.addi v52 c1_i32_33
  let c32_i32_51 : BitVec 32 := 32#32
  let v69 : BitVec 32 := Scalar.muli v53 c32_i32_51
  let v70 : BitVec 32 := Scalar.addi v1 v69
  let c3200_i32_52 : BitVec 32 := 3200#32
  let v71 : BitVec 32 := Scalar.muli v70 c3200_i32_52
  ![v71.toNat]
def k19_cond6 (i : grid19.Coords) (k19_t1 : Fin k19_t1_loop.trips) : BitVec 1 :=
  let c0_i32_21 : BitVec 32 := 0#32
  let c1_i32_22 : BitVec 32 := 1#32
  let arg12 : BitVec 32 := Scf.iv c0_i32_21 c1_i32_22 k19_t1
  let c2_i32_32 : BitVec 32 := 2#32
  let v52 : BitVec 32 := Scalar.muli arg12 c2_i32_32
  let c1_i32_33 : BitVec 32 := 1#32
  let v53 : BitVec 32 := Scalar.addi v52 c1_i32_33
  let c2_i32_37 : BitVec 32 := 2#32
  let v60 : BitVec 32 := Scalar.addi v53 c2_i32_37
  let c500_i32 : BitVec 32 := 500#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v2 : BitVec 32 := Scalar.subi c500_i32 v1
  let c32_i32 : BitVec 32 := 32#32
  let v3 : BitVec 32 := Scalar.addi v2 c32_i32
  let c1_i32 : BitVec 32 := 1#32
  let v4 : BitVec 32 := Scalar.subi v3 c1_i32
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c32_i32_0 : BitVec 32 := 32#32
  let c0_i32_2 : BitVec 32 := 0#32
  let v11 : BitVec 1 := Scalar.cmpi .sgt c32_i32_0 c0_i32_2
  let v12 : BitVec 32 := Scalar.extui v11
  let c0_i32_3 : BitVec 32 := 0#32
  let v13 : BitVec 1 := Scalar.cmpi .slt c32_i32_0 c0_i32_3
  let v14 : BitVec 32 := Scalar.extui v13
  let v15 : BitVec 32 := Scalar.subi v12 v14
  let v16 : BitVec 1 := Scalar.cmpi .ne v10 v15
  let v17 : BitVec 32 := Scalar.remsi v4 c32_i32_0
  let c0_i32_4 : BitVec 32 := 0#32
  let v18 : BitVec 1 := Scalar.cmpi .ne v17 c0_i32_4
  let v19 : BitVec 1 := Scalar.andi v16 v18
  let v5 : BitVec 32 := Scalar.divsi v4 c32_i32_0
  let c1_i32_5 : BitVec 32 := 1#32
  let v20 : BitVec 32 := Scalar.subi v5 c1_i32_5
  let v21 : BitVec 32 := Scalar.select v19 v20 v5
  let v61 : BitVec 1 := Scalar.cmpi .slt v60 v21
  let v62 : BitVec 32 := Scalar.extui v61
  let c0_i32_38 : BitVec 32 := 0#32
  let v63 : BitVec 1 := Scalar.cmpi .ne v62 c0_i32_38
  v63

def k19_off11 (i : grid19.Coords) (k19_t1 : Fin k19_t1_loop.trips) : Fin 2 → Nat :=
  let c19_i32_44 : BitVec 32 := 19#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_21 : BitVec 32 := 0#32
  let c1_i32_22 : BitVec 32 := 1#32
  let arg12 : BitVec 32 := Scf.iv c0_i32_21 c1_i32_22 k19_t1
  let c2_i32_32 : BitVec 32 := 2#32
  let v52 : BitVec 32 := Scalar.muli arg12 c2_i32_32
  let c1_i32_33 : BitVec 32 := 1#32
  let v53 : BitVec 32 := Scalar.addi v52 c1_i32_33
  let c2_i32_39 : BitVec 32 := 2#32
  let v64 : BitVec 32 := Scalar.addi v53 c2_i32_39
  let c32_i32_40 : BitVec 32 := 32#32
  let v65 : BitVec 32 := Scalar.muli v64 c32_i32_40
  let v66 : BitVec 32 := Scalar.addi v1 v65
  let c3200_i32_41 : BitVec 32 := 3200#32
  let v67 : BitVec 32 := Scalar.muli v66 c3200_i32_41
  ![19, v67.toNat]
def k19_cond7 (i : grid19.Coords) : BitVec 1 :=
  let c500_i32 : BitVec 32 := 500#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v2 : BitVec 32 := Scalar.subi c500_i32 v1
  let c32_i32 : BitVec 32 := 32#32
  let v3 : BitVec 32 := Scalar.addi v2 c32_i32
  let c1_i32 : BitVec 32 := 1#32
  let v4 : BitVec 32 := Scalar.subi v3 c1_i32
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c32_i32_0 : BitVec 32 := 32#32
  let c0_i32_2 : BitVec 32 := 0#32
  let v11 : BitVec 1 := Scalar.cmpi .sgt c32_i32_0 c0_i32_2
  let v12 : BitVec 32 := Scalar.extui v11
  let c0_i32_3 : BitVec 32 := 0#32
  let v13 : BitVec 1 := Scalar.cmpi .slt c32_i32_0 c0_i32_3
  let v14 : BitVec 32 := Scalar.extui v13
  let v15 : BitVec 32 := Scalar.subi v12 v14
  let v16 : BitVec 1 := Scalar.cmpi .ne v10 v15
  let v17 : BitVec 32 := Scalar.remsi v4 c32_i32_0
  let c0_i32_4 : BitVec 32 := 0#32
  let v18 : BitVec 1 := Scalar.cmpi .ne v17 c0_i32_4
  let v19 : BitVec 1 := Scalar.andi v16 v18
  let v5 : BitVec 32 := Scalar.divsi v4 c32_i32_0
  let c1_i32_5 : BitVec 32 := 1#32
  let v20 : BitVec 32 := Scalar.subi v5 c1_i32_5
  let v21 : BitVec 32 := Scalar.select v19 v20 v5
  let c14_i32 : BitVec 32 := 14#32
  let v35 : BitVec 1 := Scalar.cmpi .sgt v21 c14_i32
  let v36 : BitVec 32 := Scalar.extui v35
  let c0_i32_24 : BitVec 32 := 0#32
  let v37 : BitVec 1 := Scalar.cmpi .ne v36 c0_i32_24
  v37

def k19_off12 (i : grid19.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c448_i32 : BitVec 32 := 448#32
  let v41 : BitVec 32 := Scalar.addi v1 c448_i32
  let c3200_i32_26 : BitVec 32 := 3200#32
  let v42 : BitVec 32 := Scalar.muli v41 c3200_i32_26
  ![v42.toNat]
def k19_cond8 (i : grid19.Coords) : BitVec 1 :=
  let c500_i32 : BitVec 32 := 500#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v2 : BitVec 32 := Scalar.subi c500_i32 v1
  let c32_i32 : BitVec 32 := 32#32
  let v3 : BitVec 32 := Scalar.addi v2 c32_i32
  let c1_i32 : BitVec 32 := 1#32
  let v4 : BitVec 32 := Scalar.subi v3 c1_i32
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c32_i32_0 : BitVec 32 := 32#32
  let c0_i32_2 : BitVec 32 := 0#32
  let v11 : BitVec 1 := Scalar.cmpi .sgt c32_i32_0 c0_i32_2
  let v12 : BitVec 32 := Scalar.extui v11
  let c0_i32_3 : BitVec 32 := 0#32
  let v13 : BitVec 1 := Scalar.cmpi .slt c32_i32_0 c0_i32_3
  let v14 : BitVec 32 := Scalar.extui v13
  let v15 : BitVec 32 := Scalar.subi v12 v14
  let v16 : BitVec 1 := Scalar.cmpi .ne v10 v15
  let v17 : BitVec 32 := Scalar.remsi v4 c32_i32_0
  let c0_i32_4 : BitVec 32 := 0#32
  let v18 : BitVec 1 := Scalar.cmpi .ne v17 c0_i32_4
  let v19 : BitVec 1 := Scalar.andi v16 v18
  let v5 : BitVec 32 := Scalar.divsi v4 c32_i32_0
  let c1_i32_5 : BitVec 32 := 1#32
  let v20 : BitVec 32 := Scalar.subi v5 c1_i32_5
  let v21 : BitVec 32 := Scalar.select v19 v20 v5
  let c15_i32 : BitVec 32 := 15#32
  let v38 : BitVec 1 := Scalar.cmpi .sgt v21 c15_i32
  let v39 : BitVec 32 := Scalar.extui v38
  let c0_i32_25 : BitVec 32 := 0#32
  let v40 : BitVec 1 := Scalar.cmpi .ne v39 c0_i32_25
  v40

def k19_off13 (i : grid19.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c480_i32 : BitVec 32 := 480#32
  let v41 : BitVec 32 := Scalar.addi v1 c480_i32
  let c3200_i32_26 : BitVec 32 := 3200#32
  let v42 : BitVec 32 := Scalar.muli v41 c3200_i32_26
  ![v42.toNat]
abbrev grid20 : Pipeline.Grid := ⟨2, ![2, 16], ![false, false]⟩

def k20_off1 (i : grid20.Coords) (c0_i32_6 : BitVec 32) : Fin 2 → Nat :=
  let c20_i32 : BitVec 32 := 20#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v22 : BitVec 32 := Scalar.addi v1 c0_i32_6
  let c3200_i32 : BitVec 32 := 3200#32
  let v23 : BitVec 32 := Scalar.muli v22 c3200_i32
  ![20, v23.toNat]
@[reducible] def k20_t1_loop : Scf.Loop 32 :=
  let c0_i32_21 : BitVec 32 := 0#32
  let c8_i32 : BitVec 32 := 8#32
  let v34 : BitVec 32 := Scalar.addi c0_i32_21 c8_i32
  let c1_i32_22 : BitVec 32 := 1#32
  ⟨c0_i32_21, v34, c1_i32_22⟩
def k20_cond1 (k20_t1 : Fin k20_t1_loop.trips) : BitVec 1 :=
  let c0_i32_21 : BitVec 32 := 0#32
  let c1_i32_22 : BitVec 32 := 1#32
  let arg12 : BitVec 32 := Scf.iv c0_i32_21 c1_i32_22 k20_t1
  let c2_i32_26 : BitVec 32 := 2#32
  let v41 : BitVec 32 := Scalar.muli arg12 c2_i32_26
  let c2_i32_27 : BitVec 32 := 2#32
  let v42 : BitVec 1 := Scalar.cmpi .sge v41 c2_i32_27
  let v43 : BitVec 32 := Scalar.extui v42
  let c0_i32_28 : BitVec 32 := 0#32
  let v44 : BitVec 1 := Scalar.cmpi .ne v43 c0_i32_28
  v44

def k20_off2 (i : grid20.Coords) (k20_t1 : Fin k20_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_21 : BitVec 32 := 0#32
  let c1_i32_22 : BitVec 32 := 1#32
  let arg12 : BitVec 32 := Scf.iv c0_i32_21 c1_i32_22 k20_t1
  let c2_i32_26 : BitVec 32 := 2#32
  let v41 : BitVec 32 := Scalar.muli arg12 c2_i32_26
  let c2_i32_39 : BitVec 32 := 2#32
  let v64 : BitVec 32 := Scalar.subi v41 c2_i32_39
  let c32_i32_40 : BitVec 32 := 32#32
  let v65 : BitVec 32 := Scalar.muli v64 c32_i32_40
  let v66 : BitVec 32 := Scalar.addi v1 v65
  let c3200_i32_41 : BitVec 32 := 3200#32
  let v67 : BitVec 32 := Scalar.muli v66 c3200_i32_41
  ![v67.toNat]
def k20_cond2 (i : grid20.Coords) (k20_t1 : Fin k20_t1_loop.trips) : BitVec 1 :=
  let c0_i32_21 : BitVec 32 := 0#32
  let c1_i32_22 : BitVec 32 := 1#32
  let arg12 : BitVec 32 := Scf.iv c0_i32_21 c1_i32_22 k20_t1
  let c2_i32_26 : BitVec 32 := 2#32
  let v41 : BitVec 32 := Scalar.muli arg12 c2_i32_26
  let c500_i32 : BitVec 32 := 500#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v2 : BitVec 32 := Scalar.subi c500_i32 v1
  let c32_i32 : BitVec 32 := 32#32
  let v3 : BitVec 32 := Scalar.addi v2 c32_i32
  let c1_i32 : BitVec 32 := 1#32
  let v4 : BitVec 32 := Scalar.subi v3 c1_i32
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c32_i32_0 : BitVec 32 := 32#32
  let c0_i32_2 : BitVec 32 := 0#32
  let v11 : BitVec 1 := Scalar.cmpi .sgt c32_i32_0 c0_i32_2
  let v12 : BitVec 32 := Scalar.extui v11
  let c0_i32_3 : BitVec 32 := 0#32
  let v13 : BitVec 1 := Scalar.cmpi .slt c32_i32_0 c0_i32_3
  let v14 : BitVec 32 := Scalar.extui v13
  let v15 : BitVec 32 := Scalar.subi v12 v14
  let v16 : BitVec 1 := Scalar.cmpi .ne v10 v15
  let v17 : BitVec 32 := Scalar.remsi v4 c32_i32_0
  let c0_i32_4 : BitVec 32 := 0#32
  let v18 : BitVec 1 := Scalar.cmpi .ne v17 c0_i32_4
  let v19 : BitVec 1 := Scalar.andi v16 v18
  let v5 : BitVec 32 := Scalar.divsi v4 c32_i32_0
  let c1_i32_5 : BitVec 32 := 1#32
  let v20 : BitVec 32 := Scalar.subi v5 c1_i32_5
  let v21 : BitVec 32 := Scalar.select v19 v20 v5
  let v45 : BitVec 1 := Scalar.cmpi .slt v41 v21
  let v46 : BitVec 32 := Scalar.extui v45
  let c0_i32_29 : BitVec 32 := 0#32
  let v47 : BitVec 1 := Scalar.cmpi .ne v46 c0_i32_29
  v47

@[reducible] def k20_t2_loop : Scf.Loop 32 :=
  let c0_i32_48 : BitVec 32 := 0#32
  let c200_i32 : BitVec 32 := 200#32
  let v68 : BitVec 32 := Scalar.addi c0_i32_48 c200_i32
  let c1_i32_49 : BitVec 32 := 1#32
  ⟨c0_i32_48, v68, c1_i32_49⟩
def k20_off3 (k20_t2 : Fin k20_t2_loop.trips) : Fin 2 → Nat :=
  let c0_i32_55 : BitVec 32 := 0#32
  let v77 : Index := Scalar.indexCast c0_i32_55
  let c0_i32_48 : BitVec 32 := 0#32
  let c1_i32_49 : BitVec 32 := 1#32
  let arg13 : BitVec 32 := Scf.iv c0_i32_48 c1_i32_49 k20_t2
  let c16_i32 : BitVec 32 := 16#32
  let v76 : BitVec 32 := Scalar.muli arg13 c16_i32
  let v78 : Index := Scalar.indexCast v76
  ![0, v78.toNat]
def k20_off4 (k20_t2 : Fin k20_t2_loop.trips) : Fin 1 → Nat :=
  let c0_i32_57 : BitVec 32 := 0#32
  let c0_i32_48 : BitVec 32 := 0#32
  let c1_i32_49 : BitVec 32 := 1#32
  let arg13 : BitVec 32 := Scf.iv c0_i32_48 c1_i32_49 k20_t2
  let c16_i32_56 : BitVec 32 := 16#32
  let v80 : BitVec 32 := Scalar.muli arg13 c16_i32_56
  let v81 : BitVec 32 := Scalar.addi c0_i32_57 v80
  let v82 : Index := Scalar.indexCast v81
  ![v82.toNat]
def k20_off5 (i : grid20.Coords) (k20_t1 : Fin k20_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_21 : BitVec 32 := 0#32
  let c1_i32_22 : BitVec 32 := 1#32
  let arg12 : BitVec 32 := Scf.iv c0_i32_21 c1_i32_22 k20_t1
  let c2_i32_26 : BitVec 32 := 2#32
  let v41 : BitVec 32 := Scalar.muli arg12 c2_i32_26
  let c32_i32_51 : BitVec 32 := 32#32
  let v69 : BitVec 32 := Scalar.muli v41 c32_i32_51
  let v70 : BitVec 32 := Scalar.addi v1 v69
  let c3200_i32_52 : BitVec 32 := 3200#32
  let v71 : BitVec 32 := Scalar.muli v70 c3200_i32_52
  ![v71.toNat]
def k20_cond3 (i : grid20.Coords) (k20_t1 : Fin k20_t1_loop.trips) : BitVec 1 :=
  let c0_i32_21 : BitVec 32 := 0#32
  let c1_i32_22 : BitVec 32 := 1#32
  let arg12 : BitVec 32 := Scf.iv c0_i32_21 c1_i32_22 k20_t1
  let c2_i32_26 : BitVec 32 := 2#32
  let v41 : BitVec 32 := Scalar.muli arg12 c2_i32_26
  let c2_i32_30 : BitVec 32 := 2#32
  let v48 : BitVec 32 := Scalar.addi v41 c2_i32_30
  let c500_i32 : BitVec 32 := 500#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v2 : BitVec 32 := Scalar.subi c500_i32 v1
  let c32_i32 : BitVec 32 := 32#32
  let v3 : BitVec 32 := Scalar.addi v2 c32_i32
  let c1_i32 : BitVec 32 := 1#32
  let v4 : BitVec 32 := Scalar.subi v3 c1_i32
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c32_i32_0 : BitVec 32 := 32#32
  let c0_i32_2 : BitVec 32 := 0#32
  let v11 : BitVec 1 := Scalar.cmpi .sgt c32_i32_0 c0_i32_2
  let v12 : BitVec 32 := Scalar.extui v11
  let c0_i32_3 : BitVec 32 := 0#32
  let v13 : BitVec 1 := Scalar.cmpi .slt c32_i32_0 c0_i32_3
  let v14 : BitVec 32 := Scalar.extui v13
  let v15 : BitVec 32 := Scalar.subi v12 v14
  let v16 : BitVec 1 := Scalar.cmpi .ne v10 v15
  let v17 : BitVec 32 := Scalar.remsi v4 c32_i32_0
  let c0_i32_4 : BitVec 32 := 0#32
  let v18 : BitVec 1 := Scalar.cmpi .ne v17 c0_i32_4
  let v19 : BitVec 1 := Scalar.andi v16 v18
  let v5 : BitVec 32 := Scalar.divsi v4 c32_i32_0
  let c1_i32_5 : BitVec 32 := 1#32
  let v20 : BitVec 32 := Scalar.subi v5 c1_i32_5
  let v21 : BitVec 32 := Scalar.select v19 v20 v5
  let v49 : BitVec 1 := Scalar.cmpi .slt v48 v21
  let v50 : BitVec 32 := Scalar.extui v49
  let c0_i32_31 : BitVec 32 := 0#32
  let v51 : BitVec 1 := Scalar.cmpi .ne v50 c0_i32_31
  v51

def k20_off6 (i : grid20.Coords) (k20_t1 : Fin k20_t1_loop.trips) : Fin 2 → Nat :=
  let c20_i32_44 : BitVec 32 := 20#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_21 : BitVec 32 := 0#32
  let c1_i32_22 : BitVec 32 := 1#32
  let arg12 : BitVec 32 := Scf.iv c0_i32_21 c1_i32_22 k20_t1
  let c2_i32_26 : BitVec 32 := 2#32
  let v41 : BitVec 32 := Scalar.muli arg12 c2_i32_26
  let c2_i32_39 : BitVec 32 := 2#32
  let v64 : BitVec 32 := Scalar.addi v41 c2_i32_39
  let c32_i32_40 : BitVec 32 := 32#32
  let v65 : BitVec 32 := Scalar.muli v64 c32_i32_40
  let v66 : BitVec 32 := Scalar.addi v1 v65
  let c3200_i32_41 : BitVec 32 := 3200#32
  let v67 : BitVec 32 := Scalar.muli v66 c3200_i32_41
  ![20, v67.toNat]
def k20_cond4 (k20_t1 : Fin k20_t1_loop.trips) : BitVec 1 :=
  let c0_i32_21 : BitVec 32 := 0#32
  let c1_i32_22 : BitVec 32 := 1#32
  let arg12 : BitVec 32 := Scf.iv c0_i32_21 c1_i32_22 k20_t1
  let c2_i32_32 : BitVec 32 := 2#32
  let v52 : BitVec 32 := Scalar.muli arg12 c2_i32_32
  let c1_i32_33 : BitVec 32 := 1#32
  let v53 : BitVec 32 := Scalar.addi v52 c1_i32_33
  let c2_i32_34 : BitVec 32 := 2#32
  let v54 : BitVec 1 := Scalar.cmpi .sge v53 c2_i32_34
  let v55 : BitVec 32 := Scalar.extui v54
  let c0_i32_35 : BitVec 32 := 0#32
  let v56 : BitVec 1 := Scalar.cmpi .ne v55 c0_i32_35
  v56

def k20_off7 (i : grid20.Coords) (k20_t1 : Fin k20_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_21 : BitVec 32 := 0#32
  let c1_i32_22 : BitVec 32 := 1#32
  let arg12 : BitVec 32 := Scf.iv c0_i32_21 c1_i32_22 k20_t1
  let c2_i32_32 : BitVec 32 := 2#32
  let v52 : BitVec 32 := Scalar.muli arg12 c2_i32_32
  let c1_i32_33 : BitVec 32 := 1#32
  let v53 : BitVec 32 := Scalar.addi v52 c1_i32_33
  let c2_i32_39 : BitVec 32 := 2#32
  let v64 : BitVec 32 := Scalar.subi v53 c2_i32_39
  let c32_i32_40 : BitVec 32 := 32#32
  let v65 : BitVec 32 := Scalar.muli v64 c32_i32_40
  let v66 : BitVec 32 := Scalar.addi v1 v65
  let c3200_i32_41 : BitVec 32 := 3200#32
  let v67 : BitVec 32 := Scalar.muli v66 c3200_i32_41
  ![v67.toNat]
def k20_cond5 (i : grid20.Coords) (k20_t1 : Fin k20_t1_loop.trips) : BitVec 1 :=
  let c0_i32_21 : BitVec 32 := 0#32
  let c1_i32_22 : BitVec 32 := 1#32
  let arg12 : BitVec 32 := Scf.iv c0_i32_21 c1_i32_22 k20_t1
  let c2_i32_32 : BitVec 32 := 2#32
  let v52 : BitVec 32 := Scalar.muli arg12 c2_i32_32
  let c1_i32_33 : BitVec 32 := 1#32
  let v53 : BitVec 32 := Scalar.addi v52 c1_i32_33
  let c500_i32 : BitVec 32 := 500#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v2 : BitVec 32 := Scalar.subi c500_i32 v1
  let c32_i32 : BitVec 32 := 32#32
  let v3 : BitVec 32 := Scalar.addi v2 c32_i32
  let c1_i32 : BitVec 32 := 1#32
  let v4 : BitVec 32 := Scalar.subi v3 c1_i32
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c32_i32_0 : BitVec 32 := 32#32
  let c0_i32_2 : BitVec 32 := 0#32
  let v11 : BitVec 1 := Scalar.cmpi .sgt c32_i32_0 c0_i32_2
  let v12 : BitVec 32 := Scalar.extui v11
  let c0_i32_3 : BitVec 32 := 0#32
  let v13 : BitVec 1 := Scalar.cmpi .slt c32_i32_0 c0_i32_3
  let v14 : BitVec 32 := Scalar.extui v13
  let v15 : BitVec 32 := Scalar.subi v12 v14
  let v16 : BitVec 1 := Scalar.cmpi .ne v10 v15
  let v17 : BitVec 32 := Scalar.remsi v4 c32_i32_0
  let c0_i32_4 : BitVec 32 := 0#32
  let v18 : BitVec 1 := Scalar.cmpi .ne v17 c0_i32_4
  let v19 : BitVec 1 := Scalar.andi v16 v18
  let v5 : BitVec 32 := Scalar.divsi v4 c32_i32_0
  let c1_i32_5 : BitVec 32 := 1#32
  let v20 : BitVec 32 := Scalar.subi v5 c1_i32_5
  let v21 : BitVec 32 := Scalar.select v19 v20 v5
  let v57 : BitVec 1 := Scalar.cmpi .slt v53 v21
  let v58 : BitVec 32 := Scalar.extui v57
  let c0_i32_36 : BitVec 32 := 0#32
  let v59 : BitVec 1 := Scalar.cmpi .ne v58 c0_i32_36
  v59

@[reducible] def k20_t3_loop : Scf.Loop 32 :=
  let c0_i32_48 : BitVec 32 := 0#32
  let c200_i32 : BitVec 32 := 200#32
  let v68 : BitVec 32 := Scalar.addi c0_i32_48 c200_i32
  let c1_i32_49 : BitVec 32 := 1#32
  ⟨c0_i32_48, v68, c1_i32_49⟩
def k20_off8 (k20_t3 : Fin k20_t3_loop.trips) : Fin 2 → Nat :=
  let c0_i32_55 : BitVec 32 := 0#32
  let v77 : Index := Scalar.indexCast c0_i32_55
  let c0_i32_48 : BitVec 32 := 0#32
  let c1_i32_49 : BitVec 32 := 1#32
  let arg13 : BitVec 32 := Scf.iv c0_i32_48 c1_i32_49 k20_t3
  let c16_i32 : BitVec 32 := 16#32
  let v76 : BitVec 32 := Scalar.muli arg13 c16_i32
  let v78 : Index := Scalar.indexCast v76
  ![0, v78.toNat]
def k20_off9 (k20_t3 : Fin k20_t3_loop.trips) : Fin 1 → Nat :=
  let c0_i32_57 : BitVec 32 := 0#32
  let c0_i32_48 : BitVec 32 := 0#32
  let c1_i32_49 : BitVec 32 := 1#32
  let arg13 : BitVec 32 := Scf.iv c0_i32_48 c1_i32_49 k20_t3
  let c16_i32_56 : BitVec 32 := 16#32
  let v80 : BitVec 32 := Scalar.muli arg13 c16_i32_56
  let v81 : BitVec 32 := Scalar.addi c0_i32_57 v80
  let v82 : Index := Scalar.indexCast v81
  ![v82.toNat]
def k20_off10 (i : grid20.Coords) (k20_t1 : Fin k20_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_21 : BitVec 32 := 0#32
  let c1_i32_22 : BitVec 32 := 1#32
  let arg12 : BitVec 32 := Scf.iv c0_i32_21 c1_i32_22 k20_t1
  let c2_i32_32 : BitVec 32 := 2#32
  let v52 : BitVec 32 := Scalar.muli arg12 c2_i32_32
  let c1_i32_33 : BitVec 32 := 1#32
  let v53 : BitVec 32 := Scalar.addi v52 c1_i32_33
  let c32_i32_51 : BitVec 32 := 32#32
  let v69 : BitVec 32 := Scalar.muli v53 c32_i32_51
  let v70 : BitVec 32 := Scalar.addi v1 v69
  let c3200_i32_52 : BitVec 32 := 3200#32
  let v71 : BitVec 32 := Scalar.muli v70 c3200_i32_52
  ![v71.toNat]
def k20_cond6 (i : grid20.Coords) (k20_t1 : Fin k20_t1_loop.trips) : BitVec 1 :=
  let c0_i32_21 : BitVec 32 := 0#32
  let c1_i32_22 : BitVec 32 := 1#32
  let arg12 : BitVec 32 := Scf.iv c0_i32_21 c1_i32_22 k20_t1
  let c2_i32_32 : BitVec 32 := 2#32
  let v52 : BitVec 32 := Scalar.muli arg12 c2_i32_32
  let c1_i32_33 : BitVec 32 := 1#32
  let v53 : BitVec 32 := Scalar.addi v52 c1_i32_33
  let c2_i32_37 : BitVec 32 := 2#32
  let v60 : BitVec 32 := Scalar.addi v53 c2_i32_37
  let c500_i32 : BitVec 32 := 500#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v2 : BitVec 32 := Scalar.subi c500_i32 v1
  let c32_i32 : BitVec 32 := 32#32
  let v3 : BitVec 32 := Scalar.addi v2 c32_i32
  let c1_i32 : BitVec 32 := 1#32
  let v4 : BitVec 32 := Scalar.subi v3 c1_i32
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c32_i32_0 : BitVec 32 := 32#32
  let c0_i32_2 : BitVec 32 := 0#32
  let v11 : BitVec 1 := Scalar.cmpi .sgt c32_i32_0 c0_i32_2
  let v12 : BitVec 32 := Scalar.extui v11
  let c0_i32_3 : BitVec 32 := 0#32
  let v13 : BitVec 1 := Scalar.cmpi .slt c32_i32_0 c0_i32_3
  let v14 : BitVec 32 := Scalar.extui v13
  let v15 : BitVec 32 := Scalar.subi v12 v14
  let v16 : BitVec 1 := Scalar.cmpi .ne v10 v15
  let v17 : BitVec 32 := Scalar.remsi v4 c32_i32_0
  let c0_i32_4 : BitVec 32 := 0#32
  let v18 : BitVec 1 := Scalar.cmpi .ne v17 c0_i32_4
  let v19 : BitVec 1 := Scalar.andi v16 v18
  let v5 : BitVec 32 := Scalar.divsi v4 c32_i32_0
  let c1_i32_5 : BitVec 32 := 1#32
  let v20 : BitVec 32 := Scalar.subi v5 c1_i32_5
  let v21 : BitVec 32 := Scalar.select v19 v20 v5
  let v61 : BitVec 1 := Scalar.cmpi .slt v60 v21
  let v62 : BitVec 32 := Scalar.extui v61
  let c0_i32_38 : BitVec 32 := 0#32
  let v63 : BitVec 1 := Scalar.cmpi .ne v62 c0_i32_38
  v63

def k20_off11 (i : grid20.Coords) (k20_t1 : Fin k20_t1_loop.trips) : Fin 2 → Nat :=
  let c20_i32_44 : BitVec 32 := 20#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_21 : BitVec 32 := 0#32
  let c1_i32_22 : BitVec 32 := 1#32
  let arg12 : BitVec 32 := Scf.iv c0_i32_21 c1_i32_22 k20_t1
  let c2_i32_32 : BitVec 32 := 2#32
  let v52 : BitVec 32 := Scalar.muli arg12 c2_i32_32
  let c1_i32_33 : BitVec 32 := 1#32
  let v53 : BitVec 32 := Scalar.addi v52 c1_i32_33
  let c2_i32_39 : BitVec 32 := 2#32
  let v64 : BitVec 32 := Scalar.addi v53 c2_i32_39
  let c32_i32_40 : BitVec 32 := 32#32
  let v65 : BitVec 32 := Scalar.muli v64 c32_i32_40
  let v66 : BitVec 32 := Scalar.addi v1 v65
  let c3200_i32_41 : BitVec 32 := 3200#32
  let v67 : BitVec 32 := Scalar.muli v66 c3200_i32_41
  ![20, v67.toNat]
def k20_cond7 (i : grid20.Coords) : BitVec 1 :=
  let c500_i32 : BitVec 32 := 500#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v2 : BitVec 32 := Scalar.subi c500_i32 v1
  let c32_i32 : BitVec 32 := 32#32
  let v3 : BitVec 32 := Scalar.addi v2 c32_i32
  let c1_i32 : BitVec 32 := 1#32
  let v4 : BitVec 32 := Scalar.subi v3 c1_i32
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c32_i32_0 : BitVec 32 := 32#32
  let c0_i32_2 : BitVec 32 := 0#32
  let v11 : BitVec 1 := Scalar.cmpi .sgt c32_i32_0 c0_i32_2
  let v12 : BitVec 32 := Scalar.extui v11
  let c0_i32_3 : BitVec 32 := 0#32
  let v13 : BitVec 1 := Scalar.cmpi .slt c32_i32_0 c0_i32_3
  let v14 : BitVec 32 := Scalar.extui v13
  let v15 : BitVec 32 := Scalar.subi v12 v14
  let v16 : BitVec 1 := Scalar.cmpi .ne v10 v15
  let v17 : BitVec 32 := Scalar.remsi v4 c32_i32_0
  let c0_i32_4 : BitVec 32 := 0#32
  let v18 : BitVec 1 := Scalar.cmpi .ne v17 c0_i32_4
  let v19 : BitVec 1 := Scalar.andi v16 v18
  let v5 : BitVec 32 := Scalar.divsi v4 c32_i32_0
  let c1_i32_5 : BitVec 32 := 1#32
  let v20 : BitVec 32 := Scalar.subi v5 c1_i32_5
  let v21 : BitVec 32 := Scalar.select v19 v20 v5
  let c14_i32 : BitVec 32 := 14#32
  let v35 : BitVec 1 := Scalar.cmpi .sgt v21 c14_i32
  let v36 : BitVec 32 := Scalar.extui v35
  let c0_i32_24 : BitVec 32 := 0#32
  let v37 : BitVec 1 := Scalar.cmpi .ne v36 c0_i32_24
  v37

def k20_off12 (i : grid20.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c448_i32 : BitVec 32 := 448#32
  let v41 : BitVec 32 := Scalar.addi v1 c448_i32
  let c3200_i32_26 : BitVec 32 := 3200#32
  let v42 : BitVec 32 := Scalar.muli v41 c3200_i32_26
  ![v42.toNat]
def k20_cond8 (i : grid20.Coords) : BitVec 1 :=
  let c500_i32 : BitVec 32 := 500#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v2 : BitVec 32 := Scalar.subi c500_i32 v1
  let c32_i32 : BitVec 32 := 32#32
  let v3 : BitVec 32 := Scalar.addi v2 c32_i32
  let c1_i32 : BitVec 32 := 1#32
  let v4 : BitVec 32 := Scalar.subi v3 c1_i32
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c32_i32_0 : BitVec 32 := 32#32
  let c0_i32_2 : BitVec 32 := 0#32
  let v11 : BitVec 1 := Scalar.cmpi .sgt c32_i32_0 c0_i32_2
  let v12 : BitVec 32 := Scalar.extui v11
  let c0_i32_3 : BitVec 32 := 0#32
  let v13 : BitVec 1 := Scalar.cmpi .slt c32_i32_0 c0_i32_3
  let v14 : BitVec 32 := Scalar.extui v13
  let v15 : BitVec 32 := Scalar.subi v12 v14
  let v16 : BitVec 1 := Scalar.cmpi .ne v10 v15
  let v17 : BitVec 32 := Scalar.remsi v4 c32_i32_0
  let c0_i32_4 : BitVec 32 := 0#32
  let v18 : BitVec 1 := Scalar.cmpi .ne v17 c0_i32_4
  let v19 : BitVec 1 := Scalar.andi v16 v18
  let v5 : BitVec 32 := Scalar.divsi v4 c32_i32_0
  let c1_i32_5 : BitVec 32 := 1#32
  let v20 : BitVec 32 := Scalar.subi v5 c1_i32_5
  let v21 : BitVec 32 := Scalar.select v19 v20 v5
  let c15_i32 : BitVec 32 := 15#32
  let v38 : BitVec 1 := Scalar.cmpi .sgt v21 c15_i32
  let v39 : BitVec 32 := Scalar.extui v38
  let c0_i32_25 : BitVec 32 := 0#32
  let v40 : BitVec 1 := Scalar.cmpi .ne v39 c0_i32_25
  v40

def k20_off13 (i : grid20.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c480_i32 : BitVec 32 := 480#32
  let v41 : BitVec 32 := Scalar.addi v1 c480_i32
  let c3200_i32_26 : BitVec 32 := 3200#32
  let v42 : BitVec 32 := Scalar.muli v41 c3200_i32_26
  ![v42.toNat]
abbrev grid21 : Pipeline.Grid := ⟨2, ![2, 16], ![false, false]⟩

def k21_off1 (i : grid21.Coords) (c0_i32_6 : BitVec 32) : Fin 2 → Nat :=
  let c21_i32 : BitVec 32 := 21#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v22 : BitVec 32 := Scalar.addi v1 c0_i32_6
  let c3200_i32 : BitVec 32 := 3200#32
  let v23 : BitVec 32 := Scalar.muli v22 c3200_i32
  ![21, v23.toNat]
@[reducible] def k21_t1_loop : Scf.Loop 32 :=
  let c0_i32_21 : BitVec 32 := 0#32
  let c8_i32 : BitVec 32 := 8#32
  let v34 : BitVec 32 := Scalar.addi c0_i32_21 c8_i32
  let c1_i32_22 : BitVec 32 := 1#32
  ⟨c0_i32_21, v34, c1_i32_22⟩
def k21_cond1 (k21_t1 : Fin k21_t1_loop.trips) : BitVec 1 :=
  let c0_i32_21 : BitVec 32 := 0#32
  let c1_i32_22 : BitVec 32 := 1#32
  let arg12 : BitVec 32 := Scf.iv c0_i32_21 c1_i32_22 k21_t1
  let c2_i32_26 : BitVec 32 := 2#32
  let v41 : BitVec 32 := Scalar.muli arg12 c2_i32_26
  let c2_i32_27 : BitVec 32 := 2#32
  let v42 : BitVec 1 := Scalar.cmpi .sge v41 c2_i32_27
  let v43 : BitVec 32 := Scalar.extui v42
  let c0_i32_28 : BitVec 32 := 0#32
  let v44 : BitVec 1 := Scalar.cmpi .ne v43 c0_i32_28
  v44

def k21_off2 (i : grid21.Coords) (k21_t1 : Fin k21_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_21 : BitVec 32 := 0#32
  let c1_i32_22 : BitVec 32 := 1#32
  let arg12 : BitVec 32 := Scf.iv c0_i32_21 c1_i32_22 k21_t1
  let c2_i32_26 : BitVec 32 := 2#32
  let v41 : BitVec 32 := Scalar.muli arg12 c2_i32_26
  let c2_i32_39 : BitVec 32 := 2#32
  let v64 : BitVec 32 := Scalar.subi v41 c2_i32_39
  let c32_i32_40 : BitVec 32 := 32#32
  let v65 : BitVec 32 := Scalar.muli v64 c32_i32_40
  let v66 : BitVec 32 := Scalar.addi v1 v65
  let c3200_i32_41 : BitVec 32 := 3200#32
  let v67 : BitVec 32 := Scalar.muli v66 c3200_i32_41
  ![v67.toNat]
def k21_cond2 (i : grid21.Coords) (k21_t1 : Fin k21_t1_loop.trips) : BitVec 1 :=
  let c0_i32_21 : BitVec 32 := 0#32
  let c1_i32_22 : BitVec 32 := 1#32
  let arg12 : BitVec 32 := Scf.iv c0_i32_21 c1_i32_22 k21_t1
  let c2_i32_26 : BitVec 32 := 2#32
  let v41 : BitVec 32 := Scalar.muli arg12 c2_i32_26
  let c500_i32 : BitVec 32 := 500#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v2 : BitVec 32 := Scalar.subi c500_i32 v1
  let c32_i32 : BitVec 32 := 32#32
  let v3 : BitVec 32 := Scalar.addi v2 c32_i32
  let c1_i32 : BitVec 32 := 1#32
  let v4 : BitVec 32 := Scalar.subi v3 c1_i32
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c32_i32_0 : BitVec 32 := 32#32
  let c0_i32_2 : BitVec 32 := 0#32
  let v11 : BitVec 1 := Scalar.cmpi .sgt c32_i32_0 c0_i32_2
  let v12 : BitVec 32 := Scalar.extui v11
  let c0_i32_3 : BitVec 32 := 0#32
  let v13 : BitVec 1 := Scalar.cmpi .slt c32_i32_0 c0_i32_3
  let v14 : BitVec 32 := Scalar.extui v13
  let v15 : BitVec 32 := Scalar.subi v12 v14
  let v16 : BitVec 1 := Scalar.cmpi .ne v10 v15
  let v17 : BitVec 32 := Scalar.remsi v4 c32_i32_0
  let c0_i32_4 : BitVec 32 := 0#32
  let v18 : BitVec 1 := Scalar.cmpi .ne v17 c0_i32_4
  let v19 : BitVec 1 := Scalar.andi v16 v18
  let v5 : BitVec 32 := Scalar.divsi v4 c32_i32_0
  let c1_i32_5 : BitVec 32 := 1#32
  let v20 : BitVec 32 := Scalar.subi v5 c1_i32_5
  let v21 : BitVec 32 := Scalar.select v19 v20 v5
  let v45 : BitVec 1 := Scalar.cmpi .slt v41 v21
  let v46 : BitVec 32 := Scalar.extui v45
  let c0_i32_29 : BitVec 32 := 0#32
  let v47 : BitVec 1 := Scalar.cmpi .ne v46 c0_i32_29
  v47

@[reducible] def k21_t2_loop : Scf.Loop 32 :=
  let c0_i32_48 : BitVec 32 := 0#32
  let c200_i32 : BitVec 32 := 200#32
  let v68 : BitVec 32 := Scalar.addi c0_i32_48 c200_i32
  let c1_i32_49 : BitVec 32 := 1#32
  ⟨c0_i32_48, v68, c1_i32_49⟩
def k21_off3 (k21_t2 : Fin k21_t2_loop.trips) : Fin 2 → Nat :=
  let c0_i32_55 : BitVec 32 := 0#32
  let v77 : Index := Scalar.indexCast c0_i32_55
  let c0_i32_48 : BitVec 32 := 0#32
  let c1_i32_49 : BitVec 32 := 1#32
  let arg13 : BitVec 32 := Scf.iv c0_i32_48 c1_i32_49 k21_t2
  let c16_i32 : BitVec 32 := 16#32
  let v76 : BitVec 32 := Scalar.muli arg13 c16_i32
  let v78 : Index := Scalar.indexCast v76
  ![0, v78.toNat]
def k21_off4 (k21_t2 : Fin k21_t2_loop.trips) : Fin 1 → Nat :=
  let c0_i32_57 : BitVec 32 := 0#32
  let c0_i32_48 : BitVec 32 := 0#32
  let c1_i32_49 : BitVec 32 := 1#32
  let arg13 : BitVec 32 := Scf.iv c0_i32_48 c1_i32_49 k21_t2
  let c16_i32_56 : BitVec 32 := 16#32
  let v80 : BitVec 32 := Scalar.muli arg13 c16_i32_56
  let v81 : BitVec 32 := Scalar.addi c0_i32_57 v80
  let v82 : Index := Scalar.indexCast v81
  ![v82.toNat]
def k21_off5 (i : grid21.Coords) (k21_t1 : Fin k21_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_21 : BitVec 32 := 0#32
  let c1_i32_22 : BitVec 32 := 1#32
  let arg12 : BitVec 32 := Scf.iv c0_i32_21 c1_i32_22 k21_t1
  let c2_i32_26 : BitVec 32 := 2#32
  let v41 : BitVec 32 := Scalar.muli arg12 c2_i32_26
  let c32_i32_51 : BitVec 32 := 32#32
  let v69 : BitVec 32 := Scalar.muli v41 c32_i32_51
  let v70 : BitVec 32 := Scalar.addi v1 v69
  let c3200_i32_52 : BitVec 32 := 3200#32
  let v71 : BitVec 32 := Scalar.muli v70 c3200_i32_52
  ![v71.toNat]
def k21_cond3 (i : grid21.Coords) (k21_t1 : Fin k21_t1_loop.trips) : BitVec 1 :=
  let c0_i32_21 : BitVec 32 := 0#32
  let c1_i32_22 : BitVec 32 := 1#32
  let arg12 : BitVec 32 := Scf.iv c0_i32_21 c1_i32_22 k21_t1
  let c2_i32_26 : BitVec 32 := 2#32
  let v41 : BitVec 32 := Scalar.muli arg12 c2_i32_26
  let c2_i32_30 : BitVec 32 := 2#32
  let v48 : BitVec 32 := Scalar.addi v41 c2_i32_30
  let c500_i32 : BitVec 32 := 500#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v2 : BitVec 32 := Scalar.subi c500_i32 v1
  let c32_i32 : BitVec 32 := 32#32
  let v3 : BitVec 32 := Scalar.addi v2 c32_i32
  let c1_i32 : BitVec 32 := 1#32
  let v4 : BitVec 32 := Scalar.subi v3 c1_i32
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c32_i32_0 : BitVec 32 := 32#32
  let c0_i32_2 : BitVec 32 := 0#32
  let v11 : BitVec 1 := Scalar.cmpi .sgt c32_i32_0 c0_i32_2
  let v12 : BitVec 32 := Scalar.extui v11
  let c0_i32_3 : BitVec 32 := 0#32
  let v13 : BitVec 1 := Scalar.cmpi .slt c32_i32_0 c0_i32_3
  let v14 : BitVec 32 := Scalar.extui v13
  let v15 : BitVec 32 := Scalar.subi v12 v14
  let v16 : BitVec 1 := Scalar.cmpi .ne v10 v15
  let v17 : BitVec 32 := Scalar.remsi v4 c32_i32_0
  let c0_i32_4 : BitVec 32 := 0#32
  let v18 : BitVec 1 := Scalar.cmpi .ne v17 c0_i32_4
  let v19 : BitVec 1 := Scalar.andi v16 v18
  let v5 : BitVec 32 := Scalar.divsi v4 c32_i32_0
  let c1_i32_5 : BitVec 32 := 1#32
  let v20 : BitVec 32 := Scalar.subi v5 c1_i32_5
  let v21 : BitVec 32 := Scalar.select v19 v20 v5
  let v49 : BitVec 1 := Scalar.cmpi .slt v48 v21
  let v50 : BitVec 32 := Scalar.extui v49
  let c0_i32_31 : BitVec 32 := 0#32
  let v51 : BitVec 1 := Scalar.cmpi .ne v50 c0_i32_31
  v51

def k21_off6 (i : grid21.Coords) (k21_t1 : Fin k21_t1_loop.trips) : Fin 2 → Nat :=
  let c21_i32_44 : BitVec 32 := 21#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_21 : BitVec 32 := 0#32
  let c1_i32_22 : BitVec 32 := 1#32
  let arg12 : BitVec 32 := Scf.iv c0_i32_21 c1_i32_22 k21_t1
  let c2_i32_26 : BitVec 32 := 2#32
  let v41 : BitVec 32 := Scalar.muli arg12 c2_i32_26
  let c2_i32_39 : BitVec 32 := 2#32
  let v64 : BitVec 32 := Scalar.addi v41 c2_i32_39
  let c32_i32_40 : BitVec 32 := 32#32
  let v65 : BitVec 32 := Scalar.muli v64 c32_i32_40
  let v66 : BitVec 32 := Scalar.addi v1 v65
  let c3200_i32_41 : BitVec 32 := 3200#32
  let v67 : BitVec 32 := Scalar.muli v66 c3200_i32_41
  ![21, v67.toNat]
def k21_cond4 (k21_t1 : Fin k21_t1_loop.trips) : BitVec 1 :=
  let c0_i32_21 : BitVec 32 := 0#32
  let c1_i32_22 : BitVec 32 := 1#32
  let arg12 : BitVec 32 := Scf.iv c0_i32_21 c1_i32_22 k21_t1
  let c2_i32_32 : BitVec 32 := 2#32
  let v52 : BitVec 32 := Scalar.muli arg12 c2_i32_32
  let c1_i32_33 : BitVec 32 := 1#32
  let v53 : BitVec 32 := Scalar.addi v52 c1_i32_33
  let c2_i32_34 : BitVec 32 := 2#32
  let v54 : BitVec 1 := Scalar.cmpi .sge v53 c2_i32_34
  let v55 : BitVec 32 := Scalar.extui v54
  let c0_i32_35 : BitVec 32 := 0#32
  let v56 : BitVec 1 := Scalar.cmpi .ne v55 c0_i32_35
  v56

def k21_off7 (i : grid21.Coords) (k21_t1 : Fin k21_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_21 : BitVec 32 := 0#32
  let c1_i32_22 : BitVec 32 := 1#32
  let arg12 : BitVec 32 := Scf.iv c0_i32_21 c1_i32_22 k21_t1
  let c2_i32_32 : BitVec 32 := 2#32
  let v52 : BitVec 32 := Scalar.muli arg12 c2_i32_32
  let c1_i32_33 : BitVec 32 := 1#32
  let v53 : BitVec 32 := Scalar.addi v52 c1_i32_33
  let c2_i32_39 : BitVec 32 := 2#32
  let v64 : BitVec 32 := Scalar.subi v53 c2_i32_39
  let c32_i32_40 : BitVec 32 := 32#32
  let v65 : BitVec 32 := Scalar.muli v64 c32_i32_40
  let v66 : BitVec 32 := Scalar.addi v1 v65
  let c3200_i32_41 : BitVec 32 := 3200#32
  let v67 : BitVec 32 := Scalar.muli v66 c3200_i32_41
  ![v67.toNat]
def k21_cond5 (i : grid21.Coords) (k21_t1 : Fin k21_t1_loop.trips) : BitVec 1 :=
  let c0_i32_21 : BitVec 32 := 0#32
  let c1_i32_22 : BitVec 32 := 1#32
  let arg12 : BitVec 32 := Scf.iv c0_i32_21 c1_i32_22 k21_t1
  let c2_i32_32 : BitVec 32 := 2#32
  let v52 : BitVec 32 := Scalar.muli arg12 c2_i32_32
  let c1_i32_33 : BitVec 32 := 1#32
  let v53 : BitVec 32 := Scalar.addi v52 c1_i32_33
  let c500_i32 : BitVec 32 := 500#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v2 : BitVec 32 := Scalar.subi c500_i32 v1
  let c32_i32 : BitVec 32 := 32#32
  let v3 : BitVec 32 := Scalar.addi v2 c32_i32
  let c1_i32 : BitVec 32 := 1#32
  let v4 : BitVec 32 := Scalar.subi v3 c1_i32
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c32_i32_0 : BitVec 32 := 32#32
  let c0_i32_2 : BitVec 32 := 0#32
  let v11 : BitVec 1 := Scalar.cmpi .sgt c32_i32_0 c0_i32_2
  let v12 : BitVec 32 := Scalar.extui v11
  let c0_i32_3 : BitVec 32 := 0#32
  let v13 : BitVec 1 := Scalar.cmpi .slt c32_i32_0 c0_i32_3
  let v14 : BitVec 32 := Scalar.extui v13
  let v15 : BitVec 32 := Scalar.subi v12 v14
  let v16 : BitVec 1 := Scalar.cmpi .ne v10 v15
  let v17 : BitVec 32 := Scalar.remsi v4 c32_i32_0
  let c0_i32_4 : BitVec 32 := 0#32
  let v18 : BitVec 1 := Scalar.cmpi .ne v17 c0_i32_4
  let v19 : BitVec 1 := Scalar.andi v16 v18
  let v5 : BitVec 32 := Scalar.divsi v4 c32_i32_0
  let c1_i32_5 : BitVec 32 := 1#32
  let v20 : BitVec 32 := Scalar.subi v5 c1_i32_5
  let v21 : BitVec 32 := Scalar.select v19 v20 v5
  let v57 : BitVec 1 := Scalar.cmpi .slt v53 v21
  let v58 : BitVec 32 := Scalar.extui v57
  let c0_i32_36 : BitVec 32 := 0#32
  let v59 : BitVec 1 := Scalar.cmpi .ne v58 c0_i32_36
  v59

@[reducible] def k21_t3_loop : Scf.Loop 32 :=
  let c0_i32_48 : BitVec 32 := 0#32
  let c200_i32 : BitVec 32 := 200#32
  let v68 : BitVec 32 := Scalar.addi c0_i32_48 c200_i32
  let c1_i32_49 : BitVec 32 := 1#32
  ⟨c0_i32_48, v68, c1_i32_49⟩
def k21_off8 (k21_t3 : Fin k21_t3_loop.trips) : Fin 2 → Nat :=
  let c0_i32_55 : BitVec 32 := 0#32
  let v77 : Index := Scalar.indexCast c0_i32_55
  let c0_i32_48 : BitVec 32 := 0#32
  let c1_i32_49 : BitVec 32 := 1#32
  let arg13 : BitVec 32 := Scf.iv c0_i32_48 c1_i32_49 k21_t3
  let c16_i32 : BitVec 32 := 16#32
  let v76 : BitVec 32 := Scalar.muli arg13 c16_i32
  let v78 : Index := Scalar.indexCast v76
  ![0, v78.toNat]
def k21_off9 (k21_t3 : Fin k21_t3_loop.trips) : Fin 1 → Nat :=
  let c0_i32_57 : BitVec 32 := 0#32
  let c0_i32_48 : BitVec 32 := 0#32
  let c1_i32_49 : BitVec 32 := 1#32
  let arg13 : BitVec 32 := Scf.iv c0_i32_48 c1_i32_49 k21_t3
  let c16_i32_56 : BitVec 32 := 16#32
  let v80 : BitVec 32 := Scalar.muli arg13 c16_i32_56
  let v81 : BitVec 32 := Scalar.addi c0_i32_57 v80
  let v82 : Index := Scalar.indexCast v81
  ![v82.toNat]
def k21_off10 (i : grid21.Coords) (k21_t1 : Fin k21_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_21 : BitVec 32 := 0#32
  let c1_i32_22 : BitVec 32 := 1#32
  let arg12 : BitVec 32 := Scf.iv c0_i32_21 c1_i32_22 k21_t1
  let c2_i32_32 : BitVec 32 := 2#32
  let v52 : BitVec 32 := Scalar.muli arg12 c2_i32_32
  let c1_i32_33 : BitVec 32 := 1#32
  let v53 : BitVec 32 := Scalar.addi v52 c1_i32_33
  let c32_i32_51 : BitVec 32 := 32#32
  let v69 : BitVec 32 := Scalar.muli v53 c32_i32_51
  let v70 : BitVec 32 := Scalar.addi v1 v69
  let c3200_i32_52 : BitVec 32 := 3200#32
  let v71 : BitVec 32 := Scalar.muli v70 c3200_i32_52
  ![v71.toNat]
def k21_cond6 (i : grid21.Coords) (k21_t1 : Fin k21_t1_loop.trips) : BitVec 1 :=
  let c0_i32_21 : BitVec 32 := 0#32
  let c1_i32_22 : BitVec 32 := 1#32
  let arg12 : BitVec 32 := Scf.iv c0_i32_21 c1_i32_22 k21_t1
  let c2_i32_32 : BitVec 32 := 2#32
  let v52 : BitVec 32 := Scalar.muli arg12 c2_i32_32
  let c1_i32_33 : BitVec 32 := 1#32
  let v53 : BitVec 32 := Scalar.addi v52 c1_i32_33
  let c2_i32_37 : BitVec 32 := 2#32
  let v60 : BitVec 32 := Scalar.addi v53 c2_i32_37
  let c500_i32 : BitVec 32 := 500#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v2 : BitVec 32 := Scalar.subi c500_i32 v1
  let c32_i32 : BitVec 32 := 32#32
  let v3 : BitVec 32 := Scalar.addi v2 c32_i32
  let c1_i32 : BitVec 32 := 1#32
  let v4 : BitVec 32 := Scalar.subi v3 c1_i32
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c32_i32_0 : BitVec 32 := 32#32
  let c0_i32_2 : BitVec 32 := 0#32
  let v11 : BitVec 1 := Scalar.cmpi .sgt c32_i32_0 c0_i32_2
  let v12 : BitVec 32 := Scalar.extui v11
  let c0_i32_3 : BitVec 32 := 0#32
  let v13 : BitVec 1 := Scalar.cmpi .slt c32_i32_0 c0_i32_3
  let v14 : BitVec 32 := Scalar.extui v13
  let v15 : BitVec 32 := Scalar.subi v12 v14
  let v16 : BitVec 1 := Scalar.cmpi .ne v10 v15
  let v17 : BitVec 32 := Scalar.remsi v4 c32_i32_0
  let c0_i32_4 : BitVec 32 := 0#32
  let v18 : BitVec 1 := Scalar.cmpi .ne v17 c0_i32_4
  let v19 : BitVec 1 := Scalar.andi v16 v18
  let v5 : BitVec 32 := Scalar.divsi v4 c32_i32_0
  let c1_i32_5 : BitVec 32 := 1#32
  let v20 : BitVec 32 := Scalar.subi v5 c1_i32_5
  let v21 : BitVec 32 := Scalar.select v19 v20 v5
  let v61 : BitVec 1 := Scalar.cmpi .slt v60 v21
  let v62 : BitVec 32 := Scalar.extui v61
  let c0_i32_38 : BitVec 32 := 0#32
  let v63 : BitVec 1 := Scalar.cmpi .ne v62 c0_i32_38
  v63

def k21_off11 (i : grid21.Coords) (k21_t1 : Fin k21_t1_loop.trips) : Fin 2 → Nat :=
  let c21_i32_44 : BitVec 32 := 21#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_21 : BitVec 32 := 0#32
  let c1_i32_22 : BitVec 32 := 1#32
  let arg12 : BitVec 32 := Scf.iv c0_i32_21 c1_i32_22 k21_t1
  let c2_i32_32 : BitVec 32 := 2#32
  let v52 : BitVec 32 := Scalar.muli arg12 c2_i32_32
  let c1_i32_33 : BitVec 32 := 1#32
  let v53 : BitVec 32 := Scalar.addi v52 c1_i32_33
  let c2_i32_39 : BitVec 32 := 2#32
  let v64 : BitVec 32 := Scalar.addi v53 c2_i32_39
  let c32_i32_40 : BitVec 32 := 32#32
  let v65 : BitVec 32 := Scalar.muli v64 c32_i32_40
  let v66 : BitVec 32 := Scalar.addi v1 v65
  let c3200_i32_41 : BitVec 32 := 3200#32
  let v67 : BitVec 32 := Scalar.muli v66 c3200_i32_41
  ![21, v67.toNat]
def k21_cond7 (i : grid21.Coords) : BitVec 1 :=
  let c500_i32 : BitVec 32 := 500#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v2 : BitVec 32 := Scalar.subi c500_i32 v1
  let c32_i32 : BitVec 32 := 32#32
  let v3 : BitVec 32 := Scalar.addi v2 c32_i32
  let c1_i32 : BitVec 32 := 1#32
  let v4 : BitVec 32 := Scalar.subi v3 c1_i32
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c32_i32_0 : BitVec 32 := 32#32
  let c0_i32_2 : BitVec 32 := 0#32
  let v11 : BitVec 1 := Scalar.cmpi .sgt c32_i32_0 c0_i32_2
  let v12 : BitVec 32 := Scalar.extui v11
  let c0_i32_3 : BitVec 32 := 0#32
  let v13 : BitVec 1 := Scalar.cmpi .slt c32_i32_0 c0_i32_3
  let v14 : BitVec 32 := Scalar.extui v13
  let v15 : BitVec 32 := Scalar.subi v12 v14
  let v16 : BitVec 1 := Scalar.cmpi .ne v10 v15
  let v17 : BitVec 32 := Scalar.remsi v4 c32_i32_0
  let c0_i32_4 : BitVec 32 := 0#32
  let v18 : BitVec 1 := Scalar.cmpi .ne v17 c0_i32_4
  let v19 : BitVec 1 := Scalar.andi v16 v18
  let v5 : BitVec 32 := Scalar.divsi v4 c32_i32_0
  let c1_i32_5 : BitVec 32 := 1#32
  let v20 : BitVec 32 := Scalar.subi v5 c1_i32_5
  let v21 : BitVec 32 := Scalar.select v19 v20 v5
  let c14_i32 : BitVec 32 := 14#32
  let v35 : BitVec 1 := Scalar.cmpi .sgt v21 c14_i32
  let v36 : BitVec 32 := Scalar.extui v35
  let c0_i32_24 : BitVec 32 := 0#32
  let v37 : BitVec 1 := Scalar.cmpi .ne v36 c0_i32_24
  v37

def k21_off12 (i : grid21.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c448_i32 : BitVec 32 := 448#32
  let v41 : BitVec 32 := Scalar.addi v1 c448_i32
  let c3200_i32_26 : BitVec 32 := 3200#32
  let v42 : BitVec 32 := Scalar.muli v41 c3200_i32_26
  ![v42.toNat]
def k21_cond8 (i : grid21.Coords) : BitVec 1 :=
  let c500_i32 : BitVec 32 := 500#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v2 : BitVec 32 := Scalar.subi c500_i32 v1
  let c32_i32 : BitVec 32 := 32#32
  let v3 : BitVec 32 := Scalar.addi v2 c32_i32
  let c1_i32 : BitVec 32 := 1#32
  let v4 : BitVec 32 := Scalar.subi v3 c1_i32
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c32_i32_0 : BitVec 32 := 32#32
  let c0_i32_2 : BitVec 32 := 0#32
  let v11 : BitVec 1 := Scalar.cmpi .sgt c32_i32_0 c0_i32_2
  let v12 : BitVec 32 := Scalar.extui v11
  let c0_i32_3 : BitVec 32 := 0#32
  let v13 : BitVec 1 := Scalar.cmpi .slt c32_i32_0 c0_i32_3
  let v14 : BitVec 32 := Scalar.extui v13
  let v15 : BitVec 32 := Scalar.subi v12 v14
  let v16 : BitVec 1 := Scalar.cmpi .ne v10 v15
  let v17 : BitVec 32 := Scalar.remsi v4 c32_i32_0
  let c0_i32_4 : BitVec 32 := 0#32
  let v18 : BitVec 1 := Scalar.cmpi .ne v17 c0_i32_4
  let v19 : BitVec 1 := Scalar.andi v16 v18
  let v5 : BitVec 32 := Scalar.divsi v4 c32_i32_0
  let c1_i32_5 : BitVec 32 := 1#32
  let v20 : BitVec 32 := Scalar.subi v5 c1_i32_5
  let v21 : BitVec 32 := Scalar.select v19 v20 v5
  let c15_i32 : BitVec 32 := 15#32
  let v38 : BitVec 1 := Scalar.cmpi .sgt v21 c15_i32
  let v39 : BitVec 32 := Scalar.extui v38
  let c0_i32_25 : BitVec 32 := 0#32
  let v40 : BitVec 1 := Scalar.cmpi .ne v39 c0_i32_25
  v40

def k21_off13 (i : grid21.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c480_i32 : BitVec 32 := 480#32
  let v41 : BitVec 32 := Scalar.addi v1 c480_i32
  let c3200_i32_26 : BitVec 32 := 3200#32
  let v42 : BitVec 32 := Scalar.muli v41 c3200_i32_26
  ![v42.toNat]
abbrev scKind : Fin 22 → Kind := fun | 0 => .scVector | 1 => .scVector | 2 => .scVector | 3 => .scVector | 4 => .scVector | 5 => .scVector | 6 => .scVector | 7 => .scVector | 8 => .scVector | 9 => .scVector | 10 => .scVector | 11 => .scVector | 12 => .scVector | 13 => .scVector | 14 => .scVector | 15 => .scVector | 16 => .scVector | 17 => .scVector | 18 => .scVector | 19 => .scVector | 20 => .scVector | 21 => .scVector | ⟨_ + 22, h⟩ => absurd h (Nat.not_lt.2 (Nat.le_add_left _ _))
abbrev scNCore : Fin 22 → Nat := fun | 0 => 2 | 1 => 2 | 2 => 2 | 3 => 2 | 4 => 2 | 5 => 2 | 6 => 2 | 7 => 2 | 8 => 2 | 9 => 2 | 10 => 2 | 11 => 2 | 12 => 2 | 13 => 2 | 14 => 2 | 15 => 2 | 16 => 2 | 17 => 2 | 18 => 2 | 19 => 2 | 20 => 2 | 21 => 2 | ⟨_ + 22, h⟩ => absurd h (Nat.not_lt.2 (Nat.le_add_left _ _))
abbrev scNSub : Fin 22 → Nat := fun | 0 => 16 | 1 => 16 | 2 => 16 | 3 => 16 | 4 => 16 | 5 => 16 | 6 => 16 | 7 => 16 | 8 => 16 | 9 => 16 | 10 => 16 | 11 => 16 | 12 => 16 | 13 => 16 | 14 => 16 | 15 => 16 | 16 => 16 | 17 => 16 | 18 => 16 | 19 => 16 | 20 => 16 | 21 => 16 | ⟨_ + 22, h⟩ => absurd h (Nat.not_lt.2 (Nat.le_add_left _ _))

class Facts₀ : Prop where
  transposes_S1600000x22_S22x1600000_1_0 : S1600000x22.Transposes [1, 0] S22x1600000
  inb_S8x3200_S1x3200_0_0 : ∀ a, (![0, 0] : Fin 2 → Nat) a + S1x3200.size a ≤ S8x3200.size a
  inb_S25600_S3200_0 : ∀ a, (![0] : Fin 1 → Nat) a + S3200.size a ≤ S25600.size a
  inb_S22x1600000_S1x3200_0_0 : ∀ a, (![0, 0] : Fin 2 → Nat) a + S1x3200.size a ≤ S22x1600000.size a
  h_S1x16 : 0 < S1x16.numel
  shapeCasts_S1x16_S16 : S1x16.ShapeCasts S16
  h_S16 : 0 < S16.numel
  inb_S22x1600000_S1x3200_1_0 : ∀ a, (![1, 0] : Fin 2 → Nat) a + S1x3200.size a ≤ S22x1600000.size a
  inb_S22x1600000_S1x3200_2_0 : ∀ a, (![2, 0] : Fin 2 → Nat) a + S1x3200.size a ≤ S22x1600000.size a
  inb_S22x1600000_S1x3200_3_0 : ∀ a, (![3, 0] : Fin 2 → Nat) a + S1x3200.size a ≤ S22x1600000.size a
  inb_S22x1600000_S1x3200_4_0 : ∀ a, (![4, 0] : Fin 2 → Nat) a + S1x3200.size a ≤ S22x1600000.size a
  inb_S22x1600000_S1x3200_5_0 : ∀ a, (![5, 0] : Fin 2 → Nat) a + S1x3200.size a ≤ S22x1600000.size a
  inb_S22x1600000_S1x3200_6_0 : ∀ a, (![6, 0] : Fin 2 → Nat) a + S1x3200.size a ≤ S22x1600000.size a
  inb_S22x1600000_S1x3200_7_0 : ∀ a, (![7, 0] : Fin 2 → Nat) a + S1x3200.size a ≤ S22x1600000.size a
  inb_S22x1600000_S1x3200_8_0 : ∀ a, (![8, 0] : Fin 2 → Nat) a + S1x3200.size a ≤ S22x1600000.size a
  inb_S22x1600000_S1x3200_9_0 : ∀ a, (![9, 0] : Fin 2 → Nat) a + S1x3200.size a ≤ S22x1600000.size a
  inb_S22x1600000_S1x3200_10_0 : ∀ a, (![10, 0] : Fin 2 → Nat) a + S1x3200.size a ≤ S22x1600000.size a
  inb_S22x1600000_S1x3200_11_0 : ∀ a, (![11, 0] : Fin 2 → Nat) a + S1x3200.size a ≤ S22x1600000.size a
  inb_S22x1600000_S1x3200_12_0 : ∀ a, (![12, 0] : Fin 2 → Nat) a + S1x3200.size a ≤ S22x1600000.size a
  inb_S22x1600000_S1x3200_13_0 : ∀ a, (![13, 0] : Fin 2 → Nat) a + S1x3200.size a ≤ S22x1600000.size a
  inb_S22x1600000_S1x3200_14_0 : ∀ a, (![14, 0] : Fin 2 → Nat) a + S1x3200.size a ≤ S22x1600000.size a
  inb_S22x1600000_S1x3200_15_0 : ∀ a, (![15, 0] : Fin 2 → Nat) a + S1x3200.size a ≤ S22x1600000.size a
  inb_S22x1600000_S1x3200_16_0 : ∀ a, (![16, 0] : Fin 2 → Nat) a + S1x3200.size a ≤ S22x1600000.size a
  inb_S22x1600000_S1x3200_17_0 : ∀ a, (![17, 0] : Fin 2 → Nat) a + S1x3200.size a ≤ S22x1600000.size a
  inb_S22x1600000_S1x3200_18_0 : ∀ a, (![18, 0] : Fin 2 → Nat) a + S1x3200.size a ≤ S22x1600000.size a
  inb_S22x1600000_S1x3200_19_0 : ∀ a, (![19, 0] : Fin 2 → Nat) a + S1x3200.size a ≤ S22x1600000.size a
  inb_S22x1600000_S1x3200_20_0 : ∀ a, (![20, 0] : Fin 2 → Nat) a + S1x3200.size a ≤ S22x1600000.size a
  inb_S22x1600000_S1x3200_21_0 : ∀ a, (![21, 0] : Fin 2 → Nat) a + S1x3200.size a ≤ S22x1600000.size a
  shapeCasts_S1600000_S1600000x1 : S1600000.ShapeCasts S1600000x1
  hcc0_scratch4 : 0 + S_.numel ≤ 88
  hcc0_scratch5 : 1 + S_.numel ≤ 88
  hcc0_scratch6 : 2 + S_.numel ≤ 88
  hcc0_scratch7 : 3 + S_.numel ≤ 88
  hcc1_scratch4 : 4 + S_.numel ≤ 88
  hcc1_scratch5 : 5 + S_.numel ≤ 88
  hcc1_scratch6 : 6 + S_.numel ≤ 88
  hcc1_scratch7 : 7 + S_.numel ≤ 88
  hcc2_scratch4 : 8 + S_.numel ≤ 88
  hcc2_scratch5 : 9 + S_.numel ≤ 88
  hcc2_scratch6 : 10 + S_.numel ≤ 88
  hcc2_scratch7 : 11 + S_.numel ≤ 88
  hcc3_scratch4 : 12 + S_.numel ≤ 88
  hcc3_scratch5 : 13 + S_.numel ≤ 88
  hcc3_scratch6 : 14 + S_.numel ≤ 88
  hcc3_scratch7 : 15 + S_.numel ≤ 88
  hcc4_scratch4 : 16 + S_.numel ≤ 88
  hcc4_scratch5 : 17 + S_.numel ≤ 88
  hcc4_scratch6 : 18 + S_.numel ≤ 88
  hcc4_scratch7 : 19 + S_.numel ≤ 88
  hcc5_scratch4 : 20 + S_.numel ≤ 88
  hcc5_scratch5 : 21 + S_.numel ≤ 88
  hcc5_scratch6 : 22 + S_.numel ≤ 88
  hcc5_scratch7 : 23 + S_.numel ≤ 88
  hcc6_scratch4 : 24 + S_.numel ≤ 88
  hcc6_scratch5 : 25 + S_.numel ≤ 88
  hcc6_scratch6 : 26 + S_.numel ≤ 88
  hcc6_scratch7 : 27 + S_.numel ≤ 88
  hcc7_scratch4 : 28 + S_.numel ≤ 88
  hcc7_scratch5 : 29 + S_.numel ≤ 88
  hcc7_scratch6 : 30 + S_.numel ≤ 88
  hcc7_scratch7 : 31 + S_.numel ≤ 88
  hcc8_scratch4 : 32 + S_.numel ≤ 88
  hcc8_scratch5 : 33 + S_.numel ≤ 88
  hcc8_scratch6 : 34 + S_.numel ≤ 88
  hcc8_scratch7 : 35 + S_.numel ≤ 88
  hcc9_scratch4 : 36 + S_.numel ≤ 88
  hcc9_scratch5 : 37 + S_.numel ≤ 88
  hcc9_scratch6 : 38 + S_.numel ≤ 88
  hcc9_scratch7 : 39 + S_.numel ≤ 88
  hcc10_scratch4 : 40 + S_.numel ≤ 88
  hcc10_scratch5 : 41 + S_.numel ≤ 88
  hcc10_scratch6 : 42 + S_.numel ≤ 88
  hcc10_scratch7 : 43 + S_.numel ≤ 88
  hcc11_scratch4 : 44 + S_.numel ≤ 88
  hcc11_scratch5 : 45 + S_.numel ≤ 88
  hcc11_scratch6 : 46 + S_.numel ≤ 88
  hcc11_scratch7 : 47 + S_.numel ≤ 88
  hcc12_scratch4 : 48 + S_.numel ≤ 88
  hcc12_scratch5 : 49 + S_.numel ≤ 88
  hcc12_scratch6 : 50 + S_.numel ≤ 88
  hcc12_scratch7 : 51 + S_.numel ≤ 88
  hcc13_scratch4 : 52 + S_.numel ≤ 88
  hcc13_scratch5 : 53 + S_.numel ≤ 88
  hcc13_scratch6 : 54 + S_.numel ≤ 88
  hcc13_scratch7 : 55 + S_.numel ≤ 88
  hcc14_scratch4 : 56 + S_.numel ≤ 88
  hcc14_scratch5 : 57 + S_.numel ≤ 88
  hcc14_scratch6 : 58 + S_.numel ≤ 88
  hcc14_scratch7 : 59 + S_.numel ≤ 88
  hcc15_scratch4 : 60 + S_.numel ≤ 88
  hcc15_scratch5 : 61 + S_.numel ≤ 88
  hcc15_scratch6 : 62 + S_.numel ≤ 88
  hcc15_scratch7 : 63 + S_.numel ≤ 88
  hcc16_scratch4 : 64 + S_.numel ≤ 88
  hcc16_scratch5 : 65 + S_.numel ≤ 88
  hcc16_scratch6 : 66 + S_.numel ≤ 88
  hcc16_scratch7 : 67 + S_.numel ≤ 88
  hcc17_scratch4 : 68 + S_.numel ≤ 88
  hcc17_scratch5 : 69 + S_.numel ≤ 88
  hcc17_scratch6 : 70 + S_.numel ≤ 88
  hcc17_scratch7 : 71 + S_.numel ≤ 88
  hcc18_scratch4 : 72 + S_.numel ≤ 88
  hcc18_scratch5 : 73 + S_.numel ≤ 88
  hcc18_scratch6 : 74 + S_.numel ≤ 88
  hcc18_scratch7 : 75 + S_.numel ≤ 88
  hcc19_scratch4 : 76 + S_.numel ≤ 88
  hcc19_scratch5 : 77 + S_.numel ≤ 88
  hcc19_scratch6 : 78 + S_.numel ≤ 88
  hcc19_scratch7 : 79 + S_.numel ≤ 88
  hcc20_scratch4 : 80 + S_.numel ≤ 88
  hcc20_scratch5 : 81 + S_.numel ≤ 88
  hcc20_scratch6 : 82 + S_.numel ≤ 88
  hcc20_scratch7 : 83 + S_.numel ≤ 88
  hcc21_scratch4 : 84 + S_.numel ≤ 88
  hcc21_scratch5 : 85 + S_.numel ≤ 88
  hcc21_scratch6 : 86 + S_.numel ≤ 88
  hcc21_scratch7 : 87 + S_.numel ≤ 88
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_off1_inb : ∀ i : grid0.Coords, ∀ (r : Fin 2), ∀ a, (k0_off1 i (BitVec.ofNat 32 (32 * r.val))) a + S1x3200.size a ≤ S22x1600000.size a
  k0_t1_ok : k0_t1_loop.OK
  k0_off2_inb : ∀ (i : grid0.Coords) (k0_t1 : Fin k0_t1_loop.trips), ∀ (k0_h1 : k0_cond1 k0_t1 = 1#1), ∀ a, (k0_off2 i k0_t1) a + S3200.size a ≤ S1600000.size a
  k0_t2_ok : ∀ (i : grid0.Coords) (k0_t1 : Fin k0_t1_loop.trips), ∀ (k0_h2 : k0_cond2 i k0_t1 = 1#1), k0_t2_loop.OK
  k0_off3_inb : ∀ (i : grid0.Coords) (k0_t1 : Fin k0_t1_loop.trips) (k0_t2 : Fin k0_t2_loop.trips), ∀ (k0_h2 : k0_cond2 i k0_t1 = 1#1), ∀ a, (k0_off3 k0_t2) a + S1x16.size a ≤ S8x3200.size a
  k0_off4_inb : ∀ (i : grid0.Coords) (k0_t1 : Fin k0_t1_loop.trips) (k0_t2 : Fin k0_t2_loop.trips), ∀ (k0_h2 : k0_cond2 i k0_t1 = 1#1), ∀ a, (k0_off4 k0_t2) a + S16.size a ≤ S25600.size a
  k0_off5_inb : ∀ (i : grid0.Coords) (k0_t1 : Fin k0_t1_loop.trips), ∀ (k0_h2 : k0_cond2 i k0_t1 = 1#1), ∀ a, (k0_off5 i k0_t1) a + S3200.size a ≤ S1600000.size a
  k0_off6_inb : ∀ (i : grid0.Coords) (k0_t1 : Fin k0_t1_loop.trips), ∀ (k0_h3 : k0_cond3 i k0_t1 = 1#1), ∀ a, (k0_off6 i k0_t1) a + S1x3200.size a ≤ S22x1600000.size a
  k0_off7_inb : ∀ (i : grid0.Coords) (k0_t1 : Fin k0_t1_loop.trips), ∀ (k0_h4 : k0_cond4 k0_t1 = 1#1), ∀ a, (k0_off7 i k0_t1) a + S3200.size a ≤ S1600000.size a
  k0_t3_ok : ∀ (i : grid0.Coords) (k0_t1 : Fin k0_t1_loop.trips), ∀ (k0_h5 : k0_cond5 i k0_t1 = 1#1), k0_t3_loop.OK
  k0_off8_inb : ∀ (i : grid0.Coords) (k0_t1 : Fin k0_t1_loop.trips) (k0_t3 : Fin k0_t3_loop.trips), ∀ (k0_h5 : k0_cond5 i k0_t1 = 1#1), ∀ a, (k0_off8 k0_t3) a + S1x16.size a ≤ S8x3200.size a
  k0_off9_inb : ∀ (i : grid0.Coords) (k0_t1 : Fin k0_t1_loop.trips) (k0_t3 : Fin k0_t3_loop.trips), ∀ (k0_h5 : k0_cond5 i k0_t1 = 1#1), ∀ a, (k0_off9 k0_t3) a + S16.size a ≤ S25600.size a
  k0_off10_inb : ∀ (i : grid0.Coords) (k0_t1 : Fin k0_t1_loop.trips), ∀ (k0_h5 : k0_cond5 i k0_t1 = 1#1), ∀ a, (k0_off10 i k0_t1) a + S3200.size a ≤ S1600000.size a
  k0_off11_inb : ∀ (i : grid0.Coords) (k0_t1 : Fin k0_t1_loop.trips), ∀ (k0_h6 : k0_cond6 i k0_t1 = 1#1), ∀ a, (k0_off11 i k0_t1) a + S1x3200.size a ≤ S22x1600000.size a
  k0_off12_inb : ∀ i : grid0.Coords, ∀ (k0_h7 : k0_cond7 i = 1#1), ∀ a, (k0_off12 i) a + S3200.size a ≤ S1600000.size a
  k0_off13_inb : ∀ i : grid0.Coords, ∀ (k0_h8 : k0_cond8 i = 1#1), ∀ a, (k0_off13 i) a + S3200.size a ≤ S1600000.size a
  hcore1 : grid1.bound 0 ≤ τ.nSC
  hsub1 : grid1.bound 1 ≤ τ.nSub
  k1_off1_inb : ∀ i : grid1.Coords, ∀ (r : Fin 2), ∀ a, (k1_off1 i (BitVec.ofNat 32 (32 * r.val))) a + S1x3200.size a ≤ S22x1600000.size a
  k1_t1_ok : k1_t1_loop.OK
  k1_off2_inb : ∀ (i : grid1.Coords) (k1_t1 : Fin k1_t1_loop.trips), ∀ (k1_h1 : k1_cond1 k1_t1 = 1#1), ∀ a, (k1_off2 i k1_t1) a + S3200.size a ≤ S1600000.size a
  k1_t2_ok : ∀ (i : grid1.Coords) (k1_t1 : Fin k1_t1_loop.trips), ∀ (k1_h2 : k1_cond2 i k1_t1 = 1#1), k1_t2_loop.OK
  k1_off3_inb : ∀ (i : grid1.Coords) (k1_t1 : Fin k1_t1_loop.trips) (k1_t2 : Fin k1_t2_loop.trips), ∀ (k1_h2 : k1_cond2 i k1_t1 = 1#1), ∀ a, (k1_off3 k1_t2) a + S1x16.size a ≤ S8x3200.size a
  k1_off4_inb : ∀ (i : grid1.Coords) (k1_t1 : Fin k1_t1_loop.trips) (k1_t2 : Fin k1_t2_loop.trips), ∀ (k1_h2 : k1_cond2 i k1_t1 = 1#1), ∀ a, (k1_off4 k1_t2) a + S16.size a ≤ S25600.size a
  k1_off5_inb : ∀ (i : grid1.Coords) (k1_t1 : Fin k1_t1_loop.trips), ∀ (k1_h2 : k1_cond2 i k1_t1 = 1#1), ∀ a, (k1_off5 i k1_t1) a + S3200.size a ≤ S1600000.size a
  k1_off6_inb : ∀ (i : grid1.Coords) (k1_t1 : Fin k1_t1_loop.trips), ∀ (k1_h3 : k1_cond3 i k1_t1 = 1#1), ∀ a, (k1_off6 i k1_t1) a + S1x3200.size a ≤ S22x1600000.size a
  k1_off7_inb : ∀ (i : grid1.Coords) (k1_t1 : Fin k1_t1_loop.trips), ∀ (k1_h4 : k1_cond4 k1_t1 = 1#1), ∀ a, (k1_off7 i k1_t1) a + S3200.size a ≤ S1600000.size a
  k1_t3_ok : ∀ (i : grid1.Coords) (k1_t1 : Fin k1_t1_loop.trips), ∀ (k1_h5 : k1_cond5 i k1_t1 = 1#1), k1_t3_loop.OK
  k1_off8_inb : ∀ (i : grid1.Coords) (k1_t1 : Fin k1_t1_loop.trips) (k1_t3 : Fin k1_t3_loop.trips), ∀ (k1_h5 : k1_cond5 i k1_t1 = 1#1), ∀ a, (k1_off8 k1_t3) a + S1x16.size a ≤ S8x3200.size a
  k1_off9_inb : ∀ (i : grid1.Coords) (k1_t1 : Fin k1_t1_loop.trips) (k1_t3 : Fin k1_t3_loop.trips), ∀ (k1_h5 : k1_cond5 i k1_t1 = 1#1), ∀ a, (k1_off9 k1_t3) a + S16.size a ≤ S25600.size a
  k1_off10_inb : ∀ (i : grid1.Coords) (k1_t1 : Fin k1_t1_loop.trips), ∀ (k1_h5 : k1_cond5 i k1_t1 = 1#1), ∀ a, (k1_off10 i k1_t1) a + S3200.size a ≤ S1600000.size a
  k1_off11_inb : ∀ (i : grid1.Coords) (k1_t1 : Fin k1_t1_loop.trips), ∀ (k1_h6 : k1_cond6 i k1_t1 = 1#1), ∀ a, (k1_off11 i k1_t1) a + S1x3200.size a ≤ S22x1600000.size a
  k1_off12_inb : ∀ i : grid1.Coords, ∀ (k1_h7 : k1_cond7 i = 1#1), ∀ a, (k1_off12 i) a + S3200.size a ≤ S1600000.size a
  k1_off13_inb : ∀ i : grid1.Coords, ∀ (k1_h8 : k1_cond8 i = 1#1), ∀ a, (k1_off13 i) a + S3200.size a ≤ S1600000.size a
  hcore2 : grid2.bound 0 ≤ τ.nSC
  hsub2 : grid2.bound 1 ≤ τ.nSub
  k2_off1_inb : ∀ i : grid2.Coords, ∀ (r : Fin 2), ∀ a, (k2_off1 i (BitVec.ofNat 32 (32 * r.val))) a + S1x3200.size a ≤ S22x1600000.size a
  k2_t1_ok : k2_t1_loop.OK
  k2_off2_inb : ∀ (i : grid2.Coords) (k2_t1 : Fin k2_t1_loop.trips), ∀ (k2_h1 : k2_cond1 k2_t1 = 1#1), ∀ a, (k2_off2 i k2_t1) a + S3200.size a ≤ S1600000.size a
  k2_t2_ok : ∀ (i : grid2.Coords) (k2_t1 : Fin k2_t1_loop.trips), ∀ (k2_h2 : k2_cond2 i k2_t1 = 1#1), k2_t2_loop.OK
  k2_off3_inb : ∀ (i : grid2.Coords) (k2_t1 : Fin k2_t1_loop.trips) (k2_t2 : Fin k2_t2_loop.trips), ∀ (k2_h2 : k2_cond2 i k2_t1 = 1#1), ∀ a, (k2_off3 k2_t2) a + S1x16.size a ≤ S8x3200.size a
  k2_off4_inb : ∀ (i : grid2.Coords) (k2_t1 : Fin k2_t1_loop.trips) (k2_t2 : Fin k2_t2_loop.trips), ∀ (k2_h2 : k2_cond2 i k2_t1 = 1#1), ∀ a, (k2_off4 k2_t2) a + S16.size a ≤ S25600.size a
  k2_off5_inb : ∀ (i : grid2.Coords) (k2_t1 : Fin k2_t1_loop.trips), ∀ (k2_h2 : k2_cond2 i k2_t1 = 1#1), ∀ a, (k2_off5 i k2_t1) a + S3200.size a ≤ S1600000.size a
  k2_off6_inb : ∀ (i : grid2.Coords) (k2_t1 : Fin k2_t1_loop.trips), ∀ (k2_h3 : k2_cond3 i k2_t1 = 1#1), ∀ a, (k2_off6 i k2_t1) a + S1x3200.size a ≤ S22x1600000.size a
  k2_off7_inb : ∀ (i : grid2.Coords) (k2_t1 : Fin k2_t1_loop.trips), ∀ (k2_h4 : k2_cond4 k2_t1 = 1#1), ∀ a, (k2_off7 i k2_t1) a + S3200.size a ≤ S1600000.size a
  k2_t3_ok : ∀ (i : grid2.Coords) (k2_t1 : Fin k2_t1_loop.trips), ∀ (k2_h5 : k2_cond5 i k2_t1 = 1#1), k2_t3_loop.OK
  k2_off8_inb : ∀ (i : grid2.Coords) (k2_t1 : Fin k2_t1_loop.trips) (k2_t3 : Fin k2_t3_loop.trips), ∀ (k2_h5 : k2_cond5 i k2_t1 = 1#1), ∀ a, (k2_off8 k2_t3) a + S1x16.size a ≤ S8x3200.size a
  k2_off9_inb : ∀ (i : grid2.Coords) (k2_t1 : Fin k2_t1_loop.trips) (k2_t3 : Fin k2_t3_loop.trips), ∀ (k2_h5 : k2_cond5 i k2_t1 = 1#1), ∀ a, (k2_off9 k2_t3) a + S16.size a ≤ S25600.size a
  k2_off10_inb : ∀ (i : grid2.Coords) (k2_t1 : Fin k2_t1_loop.trips), ∀ (k2_h5 : k2_cond5 i k2_t1 = 1#1), ∀ a, (k2_off10 i k2_t1) a + S3200.size a ≤ S1600000.size a
  k2_off11_inb : ∀ (i : grid2.Coords) (k2_t1 : Fin k2_t1_loop.trips), ∀ (k2_h6 : k2_cond6 i k2_t1 = 1#1), ∀ a, (k2_off11 i k2_t1) a + S1x3200.size a ≤ S22x1600000.size a
  k2_off12_inb : ∀ i : grid2.Coords, ∀ (k2_h7 : k2_cond7 i = 1#1), ∀ a, (k2_off12 i) a + S3200.size a ≤ S1600000.size a
  k2_off13_inb : ∀ i : grid2.Coords, ∀ (k2_h8 : k2_cond8 i = 1#1), ∀ a, (k2_off13 i) a + S3200.size a ≤ S1600000.size a
  hcore3 : grid3.bound 0 ≤ τ.nSC
  hsub3 : grid3.bound 1 ≤ τ.nSub
  k3_off1_inb : ∀ i : grid3.Coords, ∀ (r : Fin 2), ∀ a, (k3_off1 i (BitVec.ofNat 32 (32 * r.val))) a + S1x3200.size a ≤ S22x1600000.size a
  k3_t1_ok : k3_t1_loop.OK
  k3_off2_inb : ∀ (i : grid3.Coords) (k3_t1 : Fin k3_t1_loop.trips), ∀ (k3_h1 : k3_cond1 k3_t1 = 1#1), ∀ a, (k3_off2 i k3_t1) a + S3200.size a ≤ S1600000.size a
  k3_t2_ok : ∀ (i : grid3.Coords) (k3_t1 : Fin k3_t1_loop.trips), ∀ (k3_h2 : k3_cond2 i k3_t1 = 1#1), k3_t2_loop.OK
  k3_off3_inb : ∀ (i : grid3.Coords) (k3_t1 : Fin k3_t1_loop.trips) (k3_t2 : Fin k3_t2_loop.trips), ∀ (k3_h2 : k3_cond2 i k3_t1 = 1#1), ∀ a, (k3_off3 k3_t2) a + S1x16.size a ≤ S8x3200.size a
  k3_off4_inb : ∀ (i : grid3.Coords) (k3_t1 : Fin k3_t1_loop.trips) (k3_t2 : Fin k3_t2_loop.trips), ∀ (k3_h2 : k3_cond2 i k3_t1 = 1#1), ∀ a, (k3_off4 k3_t2) a + S16.size a ≤ S25600.size a
  k3_off5_inb : ∀ (i : grid3.Coords) (k3_t1 : Fin k3_t1_loop.trips), ∀ (k3_h2 : k3_cond2 i k3_t1 = 1#1), ∀ a, (k3_off5 i k3_t1) a + S3200.size a ≤ S1600000.size a
  k3_off6_inb : ∀ (i : grid3.Coords) (k3_t1 : Fin k3_t1_loop.trips), ∀ (k3_h3 : k3_cond3 i k3_t1 = 1#1), ∀ a, (k3_off6 i k3_t1) a + S1x3200.size a ≤ S22x1600000.size a
  k3_off7_inb : ∀ (i : grid3.Coords) (k3_t1 : Fin k3_t1_loop.trips), ∀ (k3_h4 : k3_cond4 k3_t1 = 1#1), ∀ a, (k3_off7 i k3_t1) a + S3200.size a ≤ S1600000.size a
  k3_t3_ok : ∀ (i : grid3.Coords) (k3_t1 : Fin k3_t1_loop.trips), ∀ (k3_h5 : k3_cond5 i k3_t1 = 1#1), k3_t3_loop.OK
  k3_off8_inb : ∀ (i : grid3.Coords) (k3_t1 : Fin k3_t1_loop.trips) (k3_t3 : Fin k3_t3_loop.trips), ∀ (k3_h5 : k3_cond5 i k3_t1 = 1#1), ∀ a, (k3_off8 k3_t3) a + S1x16.size a ≤ S8x3200.size a
  k3_off9_inb : ∀ (i : grid3.Coords) (k3_t1 : Fin k3_t1_loop.trips) (k3_t3 : Fin k3_t3_loop.trips), ∀ (k3_h5 : k3_cond5 i k3_t1 = 1#1), ∀ a, (k3_off9 k3_t3) a + S16.size a ≤ S25600.size a
  k3_off10_inb : ∀ (i : grid3.Coords) (k3_t1 : Fin k3_t1_loop.trips), ∀ (k3_h5 : k3_cond5 i k3_t1 = 1#1), ∀ a, (k3_off10 i k3_t1) a + S3200.size a ≤ S1600000.size a
  k3_off11_inb : ∀ (i : grid3.Coords) (k3_t1 : Fin k3_t1_loop.trips), ∀ (k3_h6 : k3_cond6 i k3_t1 = 1#1), ∀ a, (k3_off11 i k3_t1) a + S1x3200.size a ≤ S22x1600000.size a
  k3_off12_inb : ∀ i : grid3.Coords, ∀ (k3_h7 : k3_cond7 i = 1#1), ∀ a, (k3_off12 i) a + S3200.size a ≤ S1600000.size a
  k3_off13_inb : ∀ i : grid3.Coords, ∀ (k3_h8 : k3_cond8 i = 1#1), ∀ a, (k3_off13 i) a + S3200.size a ≤ S1600000.size a
  hcore4 : grid4.bound 0 ≤ τ.nSC
  hsub4 : grid4.bound 1 ≤ τ.nSub
  k4_off1_inb : ∀ i : grid4.Coords, ∀ (r : Fin 2), ∀ a, (k4_off1 i (BitVec.ofNat 32 (32 * r.val))) a + S1x3200.size a ≤ S22x1600000.size a
  k4_t1_ok : k4_t1_loop.OK
  k4_off2_inb : ∀ (i : grid4.Coords) (k4_t1 : Fin k4_t1_loop.trips), ∀ (k4_h1 : k4_cond1 k4_t1 = 1#1), ∀ a, (k4_off2 i k4_t1) a + S3200.size a ≤ S1600000.size a
  k4_t2_ok : ∀ (i : grid4.Coords) (k4_t1 : Fin k4_t1_loop.trips), ∀ (k4_h2 : k4_cond2 i k4_t1 = 1#1), k4_t2_loop.OK
  k4_off3_inb : ∀ (i : grid4.Coords) (k4_t1 : Fin k4_t1_loop.trips) (k4_t2 : Fin k4_t2_loop.trips), ∀ (k4_h2 : k4_cond2 i k4_t1 = 1#1), ∀ a, (k4_off3 k4_t2) a + S1x16.size a ≤ S8x3200.size a
  k4_off4_inb : ∀ (i : grid4.Coords) (k4_t1 : Fin k4_t1_loop.trips) (k4_t2 : Fin k4_t2_loop.trips), ∀ (k4_h2 : k4_cond2 i k4_t1 = 1#1), ∀ a, (k4_off4 k4_t2) a + S16.size a ≤ S25600.size a
  k4_off5_inb : ∀ (i : grid4.Coords) (k4_t1 : Fin k4_t1_loop.trips), ∀ (k4_h2 : k4_cond2 i k4_t1 = 1#1), ∀ a, (k4_off5 i k4_t1) a + S3200.size a ≤ S1600000.size a
  k4_off6_inb : ∀ (i : grid4.Coords) (k4_t1 : Fin k4_t1_loop.trips), ∀ (k4_h3 : k4_cond3 i k4_t1 = 1#1), ∀ a, (k4_off6 i k4_t1) a + S1x3200.size a ≤ S22x1600000.size a
  k4_off7_inb : ∀ (i : grid4.Coords) (k4_t1 : Fin k4_t1_loop.trips), ∀ (k4_h4 : k4_cond4 k4_t1 = 1#1), ∀ a, (k4_off7 i k4_t1) a + S3200.size a ≤ S1600000.size a
  k4_t3_ok : ∀ (i : grid4.Coords) (k4_t1 : Fin k4_t1_loop.trips), ∀ (k4_h5 : k4_cond5 i k4_t1 = 1#1), k4_t3_loop.OK
  k4_off8_inb : ∀ (i : grid4.Coords) (k4_t1 : Fin k4_t1_loop.trips) (k4_t3 : Fin k4_t3_loop.trips), ∀ (k4_h5 : k4_cond5 i k4_t1 = 1#1), ∀ a, (k4_off8 k4_t3) a + S1x16.size a ≤ S8x3200.size a
  k4_off9_inb : ∀ (i : grid4.Coords) (k4_t1 : Fin k4_t1_loop.trips) (k4_t3 : Fin k4_t3_loop.trips), ∀ (k4_h5 : k4_cond5 i k4_t1 = 1#1), ∀ a, (k4_off9 k4_t3) a + S16.size a ≤ S25600.size a
  k4_off10_inb : ∀ (i : grid4.Coords) (k4_t1 : Fin k4_t1_loop.trips), ∀ (k4_h5 : k4_cond5 i k4_t1 = 1#1), ∀ a, (k4_off10 i k4_t1) a + S3200.size a ≤ S1600000.size a
  k4_off11_inb : ∀ (i : grid4.Coords) (k4_t1 : Fin k4_t1_loop.trips), ∀ (k4_h6 : k4_cond6 i k4_t1 = 1#1), ∀ a, (k4_off11 i k4_t1) a + S1x3200.size a ≤ S22x1600000.size a
  k4_off12_inb : ∀ i : grid4.Coords, ∀ (k4_h7 : k4_cond7 i = 1#1), ∀ a, (k4_off12 i) a + S3200.size a ≤ S1600000.size a
  k4_off13_inb : ∀ i : grid4.Coords, ∀ (k4_h8 : k4_cond8 i = 1#1), ∀ a, (k4_off13 i) a + S3200.size a ≤ S1600000.size a
  hcore5 : grid5.bound 0 ≤ τ.nSC
  hsub5 : grid5.bound 1 ≤ τ.nSub
  k5_off1_inb : ∀ i : grid5.Coords, ∀ (r : Fin 2), ∀ a, (k5_off1 i (BitVec.ofNat 32 (32 * r.val))) a + S1x3200.size a ≤ S22x1600000.size a
  k5_t1_ok : k5_t1_loop.OK
  k5_off2_inb : ∀ (i : grid5.Coords) (k5_t1 : Fin k5_t1_loop.trips), ∀ (k5_h1 : k5_cond1 k5_t1 = 1#1), ∀ a, (k5_off2 i k5_t1) a + S3200.size a ≤ S1600000.size a
  k5_t2_ok : ∀ (i : grid5.Coords) (k5_t1 : Fin k5_t1_loop.trips), ∀ (k5_h2 : k5_cond2 i k5_t1 = 1#1), k5_t2_loop.OK
  k5_off3_inb : ∀ (i : grid5.Coords) (k5_t1 : Fin k5_t1_loop.trips) (k5_t2 : Fin k5_t2_loop.trips), ∀ (k5_h2 : k5_cond2 i k5_t1 = 1#1), ∀ a, (k5_off3 k5_t2) a + S1x16.size a ≤ S8x3200.size a
  k5_off4_inb : ∀ (i : grid5.Coords) (k5_t1 : Fin k5_t1_loop.trips) (k5_t2 : Fin k5_t2_loop.trips), ∀ (k5_h2 : k5_cond2 i k5_t1 = 1#1), ∀ a, (k5_off4 k5_t2) a + S16.size a ≤ S25600.size a
  k5_off5_inb : ∀ (i : grid5.Coords) (k5_t1 : Fin k5_t1_loop.trips), ∀ (k5_h2 : k5_cond2 i k5_t1 = 1#1), ∀ a, (k5_off5 i k5_t1) a + S3200.size a ≤ S1600000.size a
  k5_off6_inb : ∀ (i : grid5.Coords) (k5_t1 : Fin k5_t1_loop.trips), ∀ (k5_h3 : k5_cond3 i k5_t1 = 1#1), ∀ a, (k5_off6 i k5_t1) a + S1x3200.size a ≤ S22x1600000.size a
  k5_off7_inb : ∀ (i : grid5.Coords) (k5_t1 : Fin k5_t1_loop.trips), ∀ (k5_h4 : k5_cond4 k5_t1 = 1#1), ∀ a, (k5_off7 i k5_t1) a + S3200.size a ≤ S1600000.size a
  k5_t3_ok : ∀ (i : grid5.Coords) (k5_t1 : Fin k5_t1_loop.trips), ∀ (k5_h5 : k5_cond5 i k5_t1 = 1#1), k5_t3_loop.OK
  k5_off8_inb : ∀ (i : grid5.Coords) (k5_t1 : Fin k5_t1_loop.trips) (k5_t3 : Fin k5_t3_loop.trips), ∀ (k5_h5 : k5_cond5 i k5_t1 = 1#1), ∀ a, (k5_off8 k5_t3) a + S1x16.size a ≤ S8x3200.size a
  k5_off9_inb : ∀ (i : grid5.Coords) (k5_t1 : Fin k5_t1_loop.trips) (k5_t3 : Fin k5_t3_loop.trips), ∀ (k5_h5 : k5_cond5 i k5_t1 = 1#1), ∀ a, (k5_off9 k5_t3) a + S16.size a ≤ S25600.size a
  k5_off10_inb : ∀ (i : grid5.Coords) (k5_t1 : Fin k5_t1_loop.trips), ∀ (k5_h5 : k5_cond5 i k5_t1 = 1#1), ∀ a, (k5_off10 i k5_t1) a + S3200.size a ≤ S1600000.size a
  k5_off11_inb : ∀ (i : grid5.Coords) (k5_t1 : Fin k5_t1_loop.trips), ∀ (k5_h6 : k5_cond6 i k5_t1 = 1#1), ∀ a, (k5_off11 i k5_t1) a + S1x3200.size a ≤ S22x1600000.size a
  k5_off12_inb : ∀ i : grid5.Coords, ∀ (k5_h7 : k5_cond7 i = 1#1), ∀ a, (k5_off12 i) a + S3200.size a ≤ S1600000.size a
  k5_off13_inb : ∀ i : grid5.Coords, ∀ (k5_h8 : k5_cond8 i = 1#1), ∀ a, (k5_off13 i) a + S3200.size a ≤ S1600000.size a
  hcore6 : grid6.bound 0 ≤ τ.nSC
  hsub6 : grid6.bound 1 ≤ τ.nSub
  k6_off1_inb : ∀ i : grid6.Coords, ∀ (r : Fin 2), ∀ a, (k6_off1 i (BitVec.ofNat 32 (32 * r.val))) a + S1x3200.size a ≤ S22x1600000.size a
  k6_t1_ok : k6_t1_loop.OK
  k6_off2_inb : ∀ (i : grid6.Coords) (k6_t1 : Fin k6_t1_loop.trips), ∀ (k6_h1 : k6_cond1 k6_t1 = 1#1), ∀ a, (k6_off2 i k6_t1) a + S3200.size a ≤ S1600000.size a
  k6_t2_ok : ∀ (i : grid6.Coords) (k6_t1 : Fin k6_t1_loop.trips), ∀ (k6_h2 : k6_cond2 i k6_t1 = 1#1), k6_t2_loop.OK
  k6_off3_inb : ∀ (i : grid6.Coords) (k6_t1 : Fin k6_t1_loop.trips) (k6_t2 : Fin k6_t2_loop.trips), ∀ (k6_h2 : k6_cond2 i k6_t1 = 1#1), ∀ a, (k6_off3 k6_t2) a + S1x16.size a ≤ S8x3200.size a
  k6_off4_inb : ∀ (i : grid6.Coords) (k6_t1 : Fin k6_t1_loop.trips) (k6_t2 : Fin k6_t2_loop.trips), ∀ (k6_h2 : k6_cond2 i k6_t1 = 1#1), ∀ a, (k6_off4 k6_t2) a + S16.size a ≤ S25600.size a
  k6_off5_inb : ∀ (i : grid6.Coords) (k6_t1 : Fin k6_t1_loop.trips), ∀ (k6_h2 : k6_cond2 i k6_t1 = 1#1), ∀ a, (k6_off5 i k6_t1) a + S3200.size a ≤ S1600000.size a
  k6_off6_inb : ∀ (i : grid6.Coords) (k6_t1 : Fin k6_t1_loop.trips), ∀ (k6_h3 : k6_cond3 i k6_t1 = 1#1), ∀ a, (k6_off6 i k6_t1) a + S1x3200.size a ≤ S22x1600000.size a
  k6_off7_inb : ∀ (i : grid6.Coords) (k6_t1 : Fin k6_t1_loop.trips), ∀ (k6_h4 : k6_cond4 k6_t1 = 1#1), ∀ a, (k6_off7 i k6_t1) a + S3200.size a ≤ S1600000.size a
  k6_t3_ok : ∀ (i : grid6.Coords) (k6_t1 : Fin k6_t1_loop.trips), ∀ (k6_h5 : k6_cond5 i k6_t1 = 1#1), k6_t3_loop.OK
  k6_off8_inb : ∀ (i : grid6.Coords) (k6_t1 : Fin k6_t1_loop.trips) (k6_t3 : Fin k6_t3_loop.trips), ∀ (k6_h5 : k6_cond5 i k6_t1 = 1#1), ∀ a, (k6_off8 k6_t3) a + S1x16.size a ≤ S8x3200.size a
  k6_off9_inb : ∀ (i : grid6.Coords) (k6_t1 : Fin k6_t1_loop.trips) (k6_t3 : Fin k6_t3_loop.trips), ∀ (k6_h5 : k6_cond5 i k6_t1 = 1#1), ∀ a, (k6_off9 k6_t3) a + S16.size a ≤ S25600.size a
  k6_off10_inb : ∀ (i : grid6.Coords) (k6_t1 : Fin k6_t1_loop.trips), ∀ (k6_h5 : k6_cond5 i k6_t1 = 1#1), ∀ a, (k6_off10 i k6_t1) a + S3200.size a ≤ S1600000.size a
  k6_off11_inb : ∀ (i : grid6.Coords) (k6_t1 : Fin k6_t1_loop.trips), ∀ (k6_h6 : k6_cond6 i k6_t1 = 1#1), ∀ a, (k6_off11 i k6_t1) a + S1x3200.size a ≤ S22x1600000.size a
  k6_off12_inb : ∀ i : grid6.Coords, ∀ (k6_h7 : k6_cond7 i = 1#1), ∀ a, (k6_off12 i) a + S3200.size a ≤ S1600000.size a
  k6_off13_inb : ∀ i : grid6.Coords, ∀ (k6_h8 : k6_cond8 i = 1#1), ∀ a, (k6_off13 i) a + S3200.size a ≤ S1600000.size a
  hcore7 : grid7.bound 0 ≤ τ.nSC
  hsub7 : grid7.bound 1 ≤ τ.nSub
  k7_off1_inb : ∀ i : grid7.Coords, ∀ (r : Fin 2), ∀ a, (k7_off1 i (BitVec.ofNat 32 (32 * r.val))) a + S1x3200.size a ≤ S22x1600000.size a
  k7_t1_ok : k7_t1_loop.OK
  k7_off2_inb : ∀ (i : grid7.Coords) (k7_t1 : Fin k7_t1_loop.trips), ∀ (k7_h1 : k7_cond1 k7_t1 = 1#1), ∀ a, (k7_off2 i k7_t1) a + S3200.size a ≤ S1600000.size a
  k7_t2_ok : ∀ (i : grid7.Coords) (k7_t1 : Fin k7_t1_loop.trips), ∀ (k7_h2 : k7_cond2 i k7_t1 = 1#1), k7_t2_loop.OK
  k7_off3_inb : ∀ (i : grid7.Coords) (k7_t1 : Fin k7_t1_loop.trips) (k7_t2 : Fin k7_t2_loop.trips), ∀ (k7_h2 : k7_cond2 i k7_t1 = 1#1), ∀ a, (k7_off3 k7_t2) a + S1x16.size a ≤ S8x3200.size a
  k7_off4_inb : ∀ (i : grid7.Coords) (k7_t1 : Fin k7_t1_loop.trips) (k7_t2 : Fin k7_t2_loop.trips), ∀ (k7_h2 : k7_cond2 i k7_t1 = 1#1), ∀ a, (k7_off4 k7_t2) a + S16.size a ≤ S25600.size a
  k7_off5_inb : ∀ (i : grid7.Coords) (k7_t1 : Fin k7_t1_loop.trips), ∀ (k7_h2 : k7_cond2 i k7_t1 = 1#1), ∀ a, (k7_off5 i k7_t1) a + S3200.size a ≤ S1600000.size a
  k7_off6_inb : ∀ (i : grid7.Coords) (k7_t1 : Fin k7_t1_loop.trips), ∀ (k7_h3 : k7_cond3 i k7_t1 = 1#1), ∀ a, (k7_off6 i k7_t1) a + S1x3200.size a ≤ S22x1600000.size a
  k7_off7_inb : ∀ (i : grid7.Coords) (k7_t1 : Fin k7_t1_loop.trips), ∀ (k7_h4 : k7_cond4 k7_t1 = 1#1), ∀ a, (k7_off7 i k7_t1) a + S3200.size a ≤ S1600000.size a
  k7_t3_ok : ∀ (i : grid7.Coords) (k7_t1 : Fin k7_t1_loop.trips), ∀ (k7_h5 : k7_cond5 i k7_t1 = 1#1), k7_t3_loop.OK
  k7_off8_inb : ∀ (i : grid7.Coords) (k7_t1 : Fin k7_t1_loop.trips) (k7_t3 : Fin k7_t3_loop.trips), ∀ (k7_h5 : k7_cond5 i k7_t1 = 1#1), ∀ a, (k7_off8 k7_t3) a + S1x16.size a ≤ S8x3200.size a
  k7_off9_inb : ∀ (i : grid7.Coords) (k7_t1 : Fin k7_t1_loop.trips) (k7_t3 : Fin k7_t3_loop.trips), ∀ (k7_h5 : k7_cond5 i k7_t1 = 1#1), ∀ a, (k7_off9 k7_t3) a + S16.size a ≤ S25600.size a
  k7_off10_inb : ∀ (i : grid7.Coords) (k7_t1 : Fin k7_t1_loop.trips), ∀ (k7_h5 : k7_cond5 i k7_t1 = 1#1), ∀ a, (k7_off10 i k7_t1) a + S3200.size a ≤ S1600000.size a
  k7_off11_inb : ∀ (i : grid7.Coords) (k7_t1 : Fin k7_t1_loop.trips), ∀ (k7_h6 : k7_cond6 i k7_t1 = 1#1), ∀ a, (k7_off11 i k7_t1) a + S1x3200.size a ≤ S22x1600000.size a
  k7_off12_inb : ∀ i : grid7.Coords, ∀ (k7_h7 : k7_cond7 i = 1#1), ∀ a, (k7_off12 i) a + S3200.size a ≤ S1600000.size a
  k7_off13_inb : ∀ i : grid7.Coords, ∀ (k7_h8 : k7_cond8 i = 1#1), ∀ a, (k7_off13 i) a + S3200.size a ≤ S1600000.size a
  hcore8 : grid8.bound 0 ≤ τ.nSC
  hsub8 : grid8.bound 1 ≤ τ.nSub
  k8_off1_inb : ∀ i : grid8.Coords, ∀ (r : Fin 2), ∀ a, (k8_off1 i (BitVec.ofNat 32 (32 * r.val))) a + S1x3200.size a ≤ S22x1600000.size a
  k8_t1_ok : k8_t1_loop.OK
  k8_off2_inb : ∀ (i : grid8.Coords) (k8_t1 : Fin k8_t1_loop.trips), ∀ (k8_h1 : k8_cond1 k8_t1 = 1#1), ∀ a, (k8_off2 i k8_t1) a + S3200.size a ≤ S1600000.size a
  k8_t2_ok : ∀ (i : grid8.Coords) (k8_t1 : Fin k8_t1_loop.trips), ∀ (k8_h2 : k8_cond2 i k8_t1 = 1#1), k8_t2_loop.OK
  k8_off3_inb : ∀ (i : grid8.Coords) (k8_t1 : Fin k8_t1_loop.trips) (k8_t2 : Fin k8_t2_loop.trips), ∀ (k8_h2 : k8_cond2 i k8_t1 = 1#1), ∀ a, (k8_off3 k8_t2) a + S1x16.size a ≤ S8x3200.size a
  k8_off4_inb : ∀ (i : grid8.Coords) (k8_t1 : Fin k8_t1_loop.trips) (k8_t2 : Fin k8_t2_loop.trips), ∀ (k8_h2 : k8_cond2 i k8_t1 = 1#1), ∀ a, (k8_off4 k8_t2) a + S16.size a ≤ S25600.size a
  k8_off5_inb : ∀ (i : grid8.Coords) (k8_t1 : Fin k8_t1_loop.trips), ∀ (k8_h2 : k8_cond2 i k8_t1 = 1#1), ∀ a, (k8_off5 i k8_t1) a + S3200.size a ≤ S1600000.size a
  k8_off6_inb : ∀ (i : grid8.Coords) (k8_t1 : Fin k8_t1_loop.trips), ∀ (k8_h3 : k8_cond3 i k8_t1 = 1#1), ∀ a, (k8_off6 i k8_t1) a + S1x3200.size a ≤ S22x1600000.size a
  k8_off7_inb : ∀ (i : grid8.Coords) (k8_t1 : Fin k8_t1_loop.trips), ∀ (k8_h4 : k8_cond4 k8_t1 = 1#1), ∀ a, (k8_off7 i k8_t1) a + S3200.size a ≤ S1600000.size a
  k8_t3_ok : ∀ (i : grid8.Coords) (k8_t1 : Fin k8_t1_loop.trips), ∀ (k8_h5 : k8_cond5 i k8_t1 = 1#1), k8_t3_loop.OK
  k8_off8_inb : ∀ (i : grid8.Coords) (k8_t1 : Fin k8_t1_loop.trips) (k8_t3 : Fin k8_t3_loop.trips), ∀ (k8_h5 : k8_cond5 i k8_t1 = 1#1), ∀ a, (k8_off8 k8_t3) a + S1x16.size a ≤ S8x3200.size a
  k8_off9_inb : ∀ (i : grid8.Coords) (k8_t1 : Fin k8_t1_loop.trips) (k8_t3 : Fin k8_t3_loop.trips), ∀ (k8_h5 : k8_cond5 i k8_t1 = 1#1), ∀ a, (k8_off9 k8_t3) a + S16.size a ≤ S25600.size a
  k8_off10_inb : ∀ (i : grid8.Coords) (k8_t1 : Fin k8_t1_loop.trips), ∀ (k8_h5 : k8_cond5 i k8_t1 = 1#1), ∀ a, (k8_off10 i k8_t1) a + S3200.size a ≤ S1600000.size a
  k8_off11_inb : ∀ (i : grid8.Coords) (k8_t1 : Fin k8_t1_loop.trips), ∀ (k8_h6 : k8_cond6 i k8_t1 = 1#1), ∀ a, (k8_off11 i k8_t1) a + S1x3200.size a ≤ S22x1600000.size a
  k8_off12_inb : ∀ i : grid8.Coords, ∀ (k8_h7 : k8_cond7 i = 1#1), ∀ a, (k8_off12 i) a + S3200.size a ≤ S1600000.size a
  k8_off13_inb : ∀ i : grid8.Coords, ∀ (k8_h8 : k8_cond8 i = 1#1), ∀ a, (k8_off13 i) a + S3200.size a ≤ S1600000.size a
  hcore9 : grid9.bound 0 ≤ τ.nSC
  hsub9 : grid9.bound 1 ≤ τ.nSub
  k9_off1_inb : ∀ i : grid9.Coords, ∀ (r : Fin 2), ∀ a, (k9_off1 i (BitVec.ofNat 32 (32 * r.val))) a + S1x3200.size a ≤ S22x1600000.size a
  k9_t1_ok : k9_t1_loop.OK
  k9_off2_inb : ∀ (i : grid9.Coords) (k9_t1 : Fin k9_t1_loop.trips), ∀ (k9_h1 : k9_cond1 k9_t1 = 1#1), ∀ a, (k9_off2 i k9_t1) a + S3200.size a ≤ S1600000.size a
  k9_t2_ok : ∀ (i : grid9.Coords) (k9_t1 : Fin k9_t1_loop.trips), ∀ (k9_h2 : k9_cond2 i k9_t1 = 1#1), k9_t2_loop.OK
  k9_off3_inb : ∀ (i : grid9.Coords) (k9_t1 : Fin k9_t1_loop.trips) (k9_t2 : Fin k9_t2_loop.trips), ∀ (k9_h2 : k9_cond2 i k9_t1 = 1#1), ∀ a, (k9_off3 k9_t2) a + S1x16.size a ≤ S8x3200.size a
  k9_off4_inb : ∀ (i : grid9.Coords) (k9_t1 : Fin k9_t1_loop.trips) (k9_t2 : Fin k9_t2_loop.trips), ∀ (k9_h2 : k9_cond2 i k9_t1 = 1#1), ∀ a, (k9_off4 k9_t2) a + S16.size a ≤ S25600.size a
  k9_off5_inb : ∀ (i : grid9.Coords) (k9_t1 : Fin k9_t1_loop.trips), ∀ (k9_h2 : k9_cond2 i k9_t1 = 1#1), ∀ a, (k9_off5 i k9_t1) a + S3200.size a ≤ S1600000.size a
  k9_off6_inb : ∀ (i : grid9.Coords) (k9_t1 : Fin k9_t1_loop.trips), ∀ (k9_h3 : k9_cond3 i k9_t1 = 1#1), ∀ a, (k9_off6 i k9_t1) a + S1x3200.size a ≤ S22x1600000.size a
  k9_off7_inb : ∀ (i : grid9.Coords) (k9_t1 : Fin k9_t1_loop.trips), ∀ (k9_h4 : k9_cond4 k9_t1 = 1#1), ∀ a, (k9_off7 i k9_t1) a + S3200.size a ≤ S1600000.size a
  k9_t3_ok : ∀ (i : grid9.Coords) (k9_t1 : Fin k9_t1_loop.trips), ∀ (k9_h5 : k9_cond5 i k9_t1 = 1#1), k9_t3_loop.OK
  k9_off8_inb : ∀ (i : grid9.Coords) (k9_t1 : Fin k9_t1_loop.trips) (k9_t3 : Fin k9_t3_loop.trips), ∀ (k9_h5 : k9_cond5 i k9_t1 = 1#1), ∀ a, (k9_off8 k9_t3) a + S1x16.size a ≤ S8x3200.size a
  k9_off9_inb : ∀ (i : grid9.Coords) (k9_t1 : Fin k9_t1_loop.trips) (k9_t3 : Fin k9_t3_loop.trips), ∀ (k9_h5 : k9_cond5 i k9_t1 = 1#1), ∀ a, (k9_off9 k9_t3) a + S16.size a ≤ S25600.size a
  k9_off10_inb : ∀ (i : grid9.Coords) (k9_t1 : Fin k9_t1_loop.trips), ∀ (k9_h5 : k9_cond5 i k9_t1 = 1#1), ∀ a, (k9_off10 i k9_t1) a + S3200.size a ≤ S1600000.size a
  k9_off11_inb : ∀ (i : grid9.Coords) (k9_t1 : Fin k9_t1_loop.trips), ∀ (k9_h6 : k9_cond6 i k9_t1 = 1#1), ∀ a, (k9_off11 i k9_t1) a + S1x3200.size a ≤ S22x1600000.size a
  k9_off12_inb : ∀ i : grid9.Coords, ∀ (k9_h7 : k9_cond7 i = 1#1), ∀ a, (k9_off12 i) a + S3200.size a ≤ S1600000.size a
  k9_off13_inb : ∀ i : grid9.Coords, ∀ (k9_h8 : k9_cond8 i = 1#1), ∀ a, (k9_off13 i) a + S3200.size a ≤ S1600000.size a
  hcore10 : grid10.bound 0 ≤ τ.nSC
  hsub10 : grid10.bound 1 ≤ τ.nSub
  k10_off1_inb : ∀ i : grid10.Coords, ∀ (r : Fin 2), ∀ a, (k10_off1 i (BitVec.ofNat 32 (32 * r.val))) a + S1x3200.size a ≤ S22x1600000.size a
  k10_t1_ok : k10_t1_loop.OK
  k10_off2_inb : ∀ (i : grid10.Coords) (k10_t1 : Fin k10_t1_loop.trips), ∀ (k10_h1 : k10_cond1 k10_t1 = 1#1), ∀ a, (k10_off2 i k10_t1) a + S3200.size a ≤ S1600000.size a
  k10_t2_ok : ∀ (i : grid10.Coords) (k10_t1 : Fin k10_t1_loop.trips), ∀ (k10_h2 : k10_cond2 i k10_t1 = 1#1), k10_t2_loop.OK
  k10_off3_inb : ∀ (i : grid10.Coords) (k10_t1 : Fin k10_t1_loop.trips) (k10_t2 : Fin k10_t2_loop.trips), ∀ (k10_h2 : k10_cond2 i k10_t1 = 1#1), ∀ a, (k10_off3 k10_t2) a + S1x16.size a ≤ S8x3200.size a
  k10_off4_inb : ∀ (i : grid10.Coords) (k10_t1 : Fin k10_t1_loop.trips) (k10_t2 : Fin k10_t2_loop.trips), ∀ (k10_h2 : k10_cond2 i k10_t1 = 1#1), ∀ a, (k10_off4 k10_t2) a + S16.size a ≤ S25600.size a
  k10_off5_inb : ∀ (i : grid10.Coords) (k10_t1 : Fin k10_t1_loop.trips), ∀ (k10_h2 : k10_cond2 i k10_t1 = 1#1), ∀ a, (k10_off5 i k10_t1) a + S3200.size a ≤ S1600000.size a
  k10_off6_inb : ∀ (i : grid10.Coords) (k10_t1 : Fin k10_t1_loop.trips), ∀ (k10_h3 : k10_cond3 i k10_t1 = 1#1), ∀ a, (k10_off6 i k10_t1) a + S1x3200.size a ≤ S22x1600000.size a
  k10_off7_inb : ∀ (i : grid10.Coords) (k10_t1 : Fin k10_t1_loop.trips), ∀ (k10_h4 : k10_cond4 k10_t1 = 1#1), ∀ a, (k10_off7 i k10_t1) a + S3200.size a ≤ S1600000.size a
  k10_t3_ok : ∀ (i : grid10.Coords) (k10_t1 : Fin k10_t1_loop.trips), ∀ (k10_h5 : k10_cond5 i k10_t1 = 1#1), k10_t3_loop.OK
  k10_off8_inb : ∀ (i : grid10.Coords) (k10_t1 : Fin k10_t1_loop.trips) (k10_t3 : Fin k10_t3_loop.trips), ∀ (k10_h5 : k10_cond5 i k10_t1 = 1#1), ∀ a, (k10_off8 k10_t3) a + S1x16.size a ≤ S8x3200.size a
  k10_off9_inb : ∀ (i : grid10.Coords) (k10_t1 : Fin k10_t1_loop.trips) (k10_t3 : Fin k10_t3_loop.trips), ∀ (k10_h5 : k10_cond5 i k10_t1 = 1#1), ∀ a, (k10_off9 k10_t3) a + S16.size a ≤ S25600.size a
  k10_off10_inb : ∀ (i : grid10.Coords) (k10_t1 : Fin k10_t1_loop.trips), ∀ (k10_h5 : k10_cond5 i k10_t1 = 1#1), ∀ a, (k10_off10 i k10_t1) a + S3200.size a ≤ S1600000.size a
  k10_off11_inb : ∀ (i : grid10.Coords) (k10_t1 : Fin k10_t1_loop.trips), ∀ (k10_h6 : k10_cond6 i k10_t1 = 1#1), ∀ a, (k10_off11 i k10_t1) a + S1x3200.size a ≤ S22x1600000.size a
  k10_off12_inb : ∀ i : grid10.Coords, ∀ (k10_h7 : k10_cond7 i = 1#1), ∀ a, (k10_off12 i) a + S3200.size a ≤ S1600000.size a
  k10_off13_inb : ∀ i : grid10.Coords, ∀ (k10_h8 : k10_cond8 i = 1#1), ∀ a, (k10_off13 i) a + S3200.size a ≤ S1600000.size a
  hcore11 : grid11.bound 0 ≤ τ.nSC
  hsub11 : grid11.bound 1 ≤ τ.nSub
  k11_off1_inb : ∀ i : grid11.Coords, ∀ (r : Fin 2), ∀ a, (k11_off1 i (BitVec.ofNat 32 (32 * r.val))) a + S1x3200.size a ≤ S22x1600000.size a
  k11_t1_ok : k11_t1_loop.OK
  k11_off2_inb : ∀ (i : grid11.Coords) (k11_t1 : Fin k11_t1_loop.trips), ∀ (k11_h1 : k11_cond1 k11_t1 = 1#1), ∀ a, (k11_off2 i k11_t1) a + S3200.size a ≤ S1600000.size a
  k11_t2_ok : ∀ (i : grid11.Coords) (k11_t1 : Fin k11_t1_loop.trips), ∀ (k11_h2 : k11_cond2 i k11_t1 = 1#1), k11_t2_loop.OK
  k11_off3_inb : ∀ (i : grid11.Coords) (k11_t1 : Fin k11_t1_loop.trips) (k11_t2 : Fin k11_t2_loop.trips), ∀ (k11_h2 : k11_cond2 i k11_t1 = 1#1), ∀ a, (k11_off3 k11_t2) a + S1x16.size a ≤ S8x3200.size a
  k11_off4_inb : ∀ (i : grid11.Coords) (k11_t1 : Fin k11_t1_loop.trips) (k11_t2 : Fin k11_t2_loop.trips), ∀ (k11_h2 : k11_cond2 i k11_t1 = 1#1), ∀ a, (k11_off4 k11_t2) a + S16.size a ≤ S25600.size a
  k11_off5_inb : ∀ (i : grid11.Coords) (k11_t1 : Fin k11_t1_loop.trips), ∀ (k11_h2 : k11_cond2 i k11_t1 = 1#1), ∀ a, (k11_off5 i k11_t1) a + S3200.size a ≤ S1600000.size a
  k11_off6_inb : ∀ (i : grid11.Coords) (k11_t1 : Fin k11_t1_loop.trips), ∀ (k11_h3 : k11_cond3 i k11_t1 = 1#1), ∀ a, (k11_off6 i k11_t1) a + S1x3200.size a ≤ S22x1600000.size a
  k11_off7_inb : ∀ (i : grid11.Coords) (k11_t1 : Fin k11_t1_loop.trips), ∀ (k11_h4 : k11_cond4 k11_t1 = 1#1), ∀ a, (k11_off7 i k11_t1) a + S3200.size a ≤ S1600000.size a
  k11_t3_ok : ∀ (i : grid11.Coords) (k11_t1 : Fin k11_t1_loop.trips), ∀ (k11_h5 : k11_cond5 i k11_t1 = 1#1), k11_t3_loop.OK
  k11_off8_inb : ∀ (i : grid11.Coords) (k11_t1 : Fin k11_t1_loop.trips) (k11_t3 : Fin k11_t3_loop.trips), ∀ (k11_h5 : k11_cond5 i k11_t1 = 1#1), ∀ a, (k11_off8 k11_t3) a + S1x16.size a ≤ S8x3200.size a
  k11_off9_inb : ∀ (i : grid11.Coords) (k11_t1 : Fin k11_t1_loop.trips) (k11_t3 : Fin k11_t3_loop.trips), ∀ (k11_h5 : k11_cond5 i k11_t1 = 1#1), ∀ a, (k11_off9 k11_t3) a + S16.size a ≤ S25600.size a
  k11_off10_inb : ∀ (i : grid11.Coords) (k11_t1 : Fin k11_t1_loop.trips), ∀ (k11_h5 : k11_cond5 i k11_t1 = 1#1), ∀ a, (k11_off10 i k11_t1) a + S3200.size a ≤ S1600000.size a
  k11_off11_inb : ∀ (i : grid11.Coords) (k11_t1 : Fin k11_t1_loop.trips), ∀ (k11_h6 : k11_cond6 i k11_t1 = 1#1), ∀ a, (k11_off11 i k11_t1) a + S1x3200.size a ≤ S22x1600000.size a
  k11_off12_inb : ∀ i : grid11.Coords, ∀ (k11_h7 : k11_cond7 i = 1#1), ∀ a, (k11_off12 i) a + S3200.size a ≤ S1600000.size a
  k11_off13_inb : ∀ i : grid11.Coords, ∀ (k11_h8 : k11_cond8 i = 1#1), ∀ a, (k11_off13 i) a + S3200.size a ≤ S1600000.size a
  hcore12 : grid12.bound 0 ≤ τ.nSC
  hsub12 : grid12.bound 1 ≤ τ.nSub
  k12_off1_inb : ∀ i : grid12.Coords, ∀ (r : Fin 2), ∀ a, (k12_off1 i (BitVec.ofNat 32 (32 * r.val))) a + S1x3200.size a ≤ S22x1600000.size a
  k12_t1_ok : k12_t1_loop.OK
  k12_off2_inb : ∀ (i : grid12.Coords) (k12_t1 : Fin k12_t1_loop.trips), ∀ (k12_h1 : k12_cond1 k12_t1 = 1#1), ∀ a, (k12_off2 i k12_t1) a + S3200.size a ≤ S1600000.size a
  k12_t2_ok : ∀ (i : grid12.Coords) (k12_t1 : Fin k12_t1_loop.trips), ∀ (k12_h2 : k12_cond2 i k12_t1 = 1#1), k12_t2_loop.OK
  k12_off3_inb : ∀ (i : grid12.Coords) (k12_t1 : Fin k12_t1_loop.trips) (k12_t2 : Fin k12_t2_loop.trips), ∀ (k12_h2 : k12_cond2 i k12_t1 = 1#1), ∀ a, (k12_off3 k12_t2) a + S1x16.size a ≤ S8x3200.size a
  k12_off4_inb : ∀ (i : grid12.Coords) (k12_t1 : Fin k12_t1_loop.trips) (k12_t2 : Fin k12_t2_loop.trips), ∀ (k12_h2 : k12_cond2 i k12_t1 = 1#1), ∀ a, (k12_off4 k12_t2) a + S16.size a ≤ S25600.size a
  k12_off5_inb : ∀ (i : grid12.Coords) (k12_t1 : Fin k12_t1_loop.trips), ∀ (k12_h2 : k12_cond2 i k12_t1 = 1#1), ∀ a, (k12_off5 i k12_t1) a + S3200.size a ≤ S1600000.size a
  k12_off6_inb : ∀ (i : grid12.Coords) (k12_t1 : Fin k12_t1_loop.trips), ∀ (k12_h3 : k12_cond3 i k12_t1 = 1#1), ∀ a, (k12_off6 i k12_t1) a + S1x3200.size a ≤ S22x1600000.size a
  k12_off7_inb : ∀ (i : grid12.Coords) (k12_t1 : Fin k12_t1_loop.trips), ∀ (k12_h4 : k12_cond4 k12_t1 = 1#1), ∀ a, (k12_off7 i k12_t1) a + S3200.size a ≤ S1600000.size a
  k12_t3_ok : ∀ (i : grid12.Coords) (k12_t1 : Fin k12_t1_loop.trips), ∀ (k12_h5 : k12_cond5 i k12_t1 = 1#1), k12_t3_loop.OK
  k12_off8_inb : ∀ (i : grid12.Coords) (k12_t1 : Fin k12_t1_loop.trips) (k12_t3 : Fin k12_t3_loop.trips), ∀ (k12_h5 : k12_cond5 i k12_t1 = 1#1), ∀ a, (k12_off8 k12_t3) a + S1x16.size a ≤ S8x3200.size a
  k12_off9_inb : ∀ (i : grid12.Coords) (k12_t1 : Fin k12_t1_loop.trips) (k12_t3 : Fin k12_t3_loop.trips), ∀ (k12_h5 : k12_cond5 i k12_t1 = 1#1), ∀ a, (k12_off9 k12_t3) a + S16.size a ≤ S25600.size a
  k12_off10_inb : ∀ (i : grid12.Coords) (k12_t1 : Fin k12_t1_loop.trips), ∀ (k12_h5 : k12_cond5 i k12_t1 = 1#1), ∀ a, (k12_off10 i k12_t1) a + S3200.size a ≤ S1600000.size a
  k12_off11_inb : ∀ (i : grid12.Coords) (k12_t1 : Fin k12_t1_loop.trips), ∀ (k12_h6 : k12_cond6 i k12_t1 = 1#1), ∀ a, (k12_off11 i k12_t1) a + S1x3200.size a ≤ S22x1600000.size a
  k12_off12_inb : ∀ i : grid12.Coords, ∀ (k12_h7 : k12_cond7 i = 1#1), ∀ a, (k12_off12 i) a + S3200.size a ≤ S1600000.size a
  k12_off13_inb : ∀ i : grid12.Coords, ∀ (k12_h8 : k12_cond8 i = 1#1), ∀ a, (k12_off13 i) a + S3200.size a ≤ S1600000.size a
  hcore13 : grid13.bound 0 ≤ τ.nSC
  hsub13 : grid13.bound 1 ≤ τ.nSub
  k13_off1_inb : ∀ i : grid13.Coords, ∀ (r : Fin 2), ∀ a, (k13_off1 i (BitVec.ofNat 32 (32 * r.val))) a + S1x3200.size a ≤ S22x1600000.size a
  k13_t1_ok : k13_t1_loop.OK
  k13_off2_inb : ∀ (i : grid13.Coords) (k13_t1 : Fin k13_t1_loop.trips), ∀ (k13_h1 : k13_cond1 k13_t1 = 1#1), ∀ a, (k13_off2 i k13_t1) a + S3200.size a ≤ S1600000.size a
  k13_t2_ok : ∀ (i : grid13.Coords) (k13_t1 : Fin k13_t1_loop.trips), ∀ (k13_h2 : k13_cond2 i k13_t1 = 1#1), k13_t2_loop.OK
  k13_off3_inb : ∀ (i : grid13.Coords) (k13_t1 : Fin k13_t1_loop.trips) (k13_t2 : Fin k13_t2_loop.trips), ∀ (k13_h2 : k13_cond2 i k13_t1 = 1#1), ∀ a, (k13_off3 k13_t2) a + S1x16.size a ≤ S8x3200.size a
  k13_off4_inb : ∀ (i : grid13.Coords) (k13_t1 : Fin k13_t1_loop.trips) (k13_t2 : Fin k13_t2_loop.trips), ∀ (k13_h2 : k13_cond2 i k13_t1 = 1#1), ∀ a, (k13_off4 k13_t2) a + S16.size a ≤ S25600.size a
  k13_off5_inb : ∀ (i : grid13.Coords) (k13_t1 : Fin k13_t1_loop.trips), ∀ (k13_h2 : k13_cond2 i k13_t1 = 1#1), ∀ a, (k13_off5 i k13_t1) a + S3200.size a ≤ S1600000.size a
  k13_off6_inb : ∀ (i : grid13.Coords) (k13_t1 : Fin k13_t1_loop.trips), ∀ (k13_h3 : k13_cond3 i k13_t1 = 1#1), ∀ a, (k13_off6 i k13_t1) a + S1x3200.size a ≤ S22x1600000.size a
  k13_off7_inb : ∀ (i : grid13.Coords) (k13_t1 : Fin k13_t1_loop.trips), ∀ (k13_h4 : k13_cond4 k13_t1 = 1#1), ∀ a, (k13_off7 i k13_t1) a + S3200.size a ≤ S1600000.size a
  k13_t3_ok : ∀ (i : grid13.Coords) (k13_t1 : Fin k13_t1_loop.trips), ∀ (k13_h5 : k13_cond5 i k13_t1 = 1#1), k13_t3_loop.OK
  k13_off8_inb : ∀ (i : grid13.Coords) (k13_t1 : Fin k13_t1_loop.trips) (k13_t3 : Fin k13_t3_loop.trips), ∀ (k13_h5 : k13_cond5 i k13_t1 = 1#1), ∀ a, (k13_off8 k13_t3) a + S1x16.size a ≤ S8x3200.size a
  k13_off9_inb : ∀ (i : grid13.Coords) (k13_t1 : Fin k13_t1_loop.trips) (k13_t3 : Fin k13_t3_loop.trips), ∀ (k13_h5 : k13_cond5 i k13_t1 = 1#1), ∀ a, (k13_off9 k13_t3) a + S16.size a ≤ S25600.size a
  k13_off10_inb : ∀ (i : grid13.Coords) (k13_t1 : Fin k13_t1_loop.trips), ∀ (k13_h5 : k13_cond5 i k13_t1 = 1#1), ∀ a, (k13_off10 i k13_t1) a + S3200.size a ≤ S1600000.size a
  k13_off11_inb : ∀ (i : grid13.Coords) (k13_t1 : Fin k13_t1_loop.trips), ∀ (k13_h6 : k13_cond6 i k13_t1 = 1#1), ∀ a, (k13_off11 i k13_t1) a + S1x3200.size a ≤ S22x1600000.size a
  k13_off12_inb : ∀ i : grid13.Coords, ∀ (k13_h7 : k13_cond7 i = 1#1), ∀ a, (k13_off12 i) a + S3200.size a ≤ S1600000.size a
  k13_off13_inb : ∀ i : grid13.Coords, ∀ (k13_h8 : k13_cond8 i = 1#1), ∀ a, (k13_off13 i) a + S3200.size a ≤ S1600000.size a
  hcore14 : grid14.bound 0 ≤ τ.nSC
  hsub14 : grid14.bound 1 ≤ τ.nSub
  k14_off1_inb : ∀ i : grid14.Coords, ∀ (r : Fin 2), ∀ a, (k14_off1 i (BitVec.ofNat 32 (32 * r.val))) a + S1x3200.size a ≤ S22x1600000.size a
  k14_t1_ok : k14_t1_loop.OK
  k14_off2_inb : ∀ (i : grid14.Coords) (k14_t1 : Fin k14_t1_loop.trips), ∀ (k14_h1 : k14_cond1 k14_t1 = 1#1), ∀ a, (k14_off2 i k14_t1) a + S3200.size a ≤ S1600000.size a
  k14_t2_ok : ∀ (i : grid14.Coords) (k14_t1 : Fin k14_t1_loop.trips), ∀ (k14_h2 : k14_cond2 i k14_t1 = 1#1), k14_t2_loop.OK
  k14_off3_inb : ∀ (i : grid14.Coords) (k14_t1 : Fin k14_t1_loop.trips) (k14_t2 : Fin k14_t2_loop.trips), ∀ (k14_h2 : k14_cond2 i k14_t1 = 1#1), ∀ a, (k14_off3 k14_t2) a + S1x16.size a ≤ S8x3200.size a
  k14_off4_inb : ∀ (i : grid14.Coords) (k14_t1 : Fin k14_t1_loop.trips) (k14_t2 : Fin k14_t2_loop.trips), ∀ (k14_h2 : k14_cond2 i k14_t1 = 1#1), ∀ a, (k14_off4 k14_t2) a + S16.size a ≤ S25600.size a
  k14_off5_inb : ∀ (i : grid14.Coords) (k14_t1 : Fin k14_t1_loop.trips), ∀ (k14_h2 : k14_cond2 i k14_t1 = 1#1), ∀ a, (k14_off5 i k14_t1) a + S3200.size a ≤ S1600000.size a
  k14_off6_inb : ∀ (i : grid14.Coords) (k14_t1 : Fin k14_t1_loop.trips), ∀ (k14_h3 : k14_cond3 i k14_t1 = 1#1), ∀ a, (k14_off6 i k14_t1) a + S1x3200.size a ≤ S22x1600000.size a
  k14_off7_inb : ∀ (i : grid14.Coords) (k14_t1 : Fin k14_t1_loop.trips), ∀ (k14_h4 : k14_cond4 k14_t1 = 1#1), ∀ a, (k14_off7 i k14_t1) a + S3200.size a ≤ S1600000.size a
  k14_t3_ok : ∀ (i : grid14.Coords) (k14_t1 : Fin k14_t1_loop.trips), ∀ (k14_h5 : k14_cond5 i k14_t1 = 1#1), k14_t3_loop.OK
  k14_off8_inb : ∀ (i : grid14.Coords) (k14_t1 : Fin k14_t1_loop.trips) (k14_t3 : Fin k14_t3_loop.trips), ∀ (k14_h5 : k14_cond5 i k14_t1 = 1#1), ∀ a, (k14_off8 k14_t3) a + S1x16.size a ≤ S8x3200.size a
  k14_off9_inb : ∀ (i : grid14.Coords) (k14_t1 : Fin k14_t1_loop.trips) (k14_t3 : Fin k14_t3_loop.trips), ∀ (k14_h5 : k14_cond5 i k14_t1 = 1#1), ∀ a, (k14_off9 k14_t3) a + S16.size a ≤ S25600.size a
  k14_off10_inb : ∀ (i : grid14.Coords) (k14_t1 : Fin k14_t1_loop.trips), ∀ (k14_h5 : k14_cond5 i k14_t1 = 1#1), ∀ a, (k14_off10 i k14_t1) a + S3200.size a ≤ S1600000.size a
  k14_off11_inb : ∀ (i : grid14.Coords) (k14_t1 : Fin k14_t1_loop.trips), ∀ (k14_h6 : k14_cond6 i k14_t1 = 1#1), ∀ a, (k14_off11 i k14_t1) a + S1x3200.size a ≤ S22x1600000.size a
  k14_off12_inb : ∀ i : grid14.Coords, ∀ (k14_h7 : k14_cond7 i = 1#1), ∀ a, (k14_off12 i) a + S3200.size a ≤ S1600000.size a
  k14_off13_inb : ∀ i : grid14.Coords, ∀ (k14_h8 : k14_cond8 i = 1#1), ∀ a, (k14_off13 i) a + S3200.size a ≤ S1600000.size a
  hcore15 : grid15.bound 0 ≤ τ.nSC
  hsub15 : grid15.bound 1 ≤ τ.nSub
  k15_off1_inb : ∀ i : grid15.Coords, ∀ (r : Fin 2), ∀ a, (k15_off1 i (BitVec.ofNat 32 (32 * r.val))) a + S1x3200.size a ≤ S22x1600000.size a
  k15_t1_ok : k15_t1_loop.OK
  k15_off2_inb : ∀ (i : grid15.Coords) (k15_t1 : Fin k15_t1_loop.trips), ∀ (k15_h1 : k15_cond1 k15_t1 = 1#1), ∀ a, (k15_off2 i k15_t1) a + S3200.size a ≤ S1600000.size a
  k15_t2_ok : ∀ (i : grid15.Coords) (k15_t1 : Fin k15_t1_loop.trips), ∀ (k15_h2 : k15_cond2 i k15_t1 = 1#1), k15_t2_loop.OK
  k15_off3_inb : ∀ (i : grid15.Coords) (k15_t1 : Fin k15_t1_loop.trips) (k15_t2 : Fin k15_t2_loop.trips), ∀ (k15_h2 : k15_cond2 i k15_t1 = 1#1), ∀ a, (k15_off3 k15_t2) a + S1x16.size a ≤ S8x3200.size a
  k15_off4_inb : ∀ (i : grid15.Coords) (k15_t1 : Fin k15_t1_loop.trips) (k15_t2 : Fin k15_t2_loop.trips), ∀ (k15_h2 : k15_cond2 i k15_t1 = 1#1), ∀ a, (k15_off4 k15_t2) a + S16.size a ≤ S25600.size a
  k15_off5_inb : ∀ (i : grid15.Coords) (k15_t1 : Fin k15_t1_loop.trips), ∀ (k15_h2 : k15_cond2 i k15_t1 = 1#1), ∀ a, (k15_off5 i k15_t1) a + S3200.size a ≤ S1600000.size a
  k15_off6_inb : ∀ (i : grid15.Coords) (k15_t1 : Fin k15_t1_loop.trips), ∀ (k15_h3 : k15_cond3 i k15_t1 = 1#1), ∀ a, (k15_off6 i k15_t1) a + S1x3200.size a ≤ S22x1600000.size a
  k15_off7_inb : ∀ (i : grid15.Coords) (k15_t1 : Fin k15_t1_loop.trips), ∀ (k15_h4 : k15_cond4 k15_t1 = 1#1), ∀ a, (k15_off7 i k15_t1) a + S3200.size a ≤ S1600000.size a
  k15_t3_ok : ∀ (i : grid15.Coords) (k15_t1 : Fin k15_t1_loop.trips), ∀ (k15_h5 : k15_cond5 i k15_t1 = 1#1), k15_t3_loop.OK
  k15_off8_inb : ∀ (i : grid15.Coords) (k15_t1 : Fin k15_t1_loop.trips) (k15_t3 : Fin k15_t3_loop.trips), ∀ (k15_h5 : k15_cond5 i k15_t1 = 1#1), ∀ a, (k15_off8 k15_t3) a + S1x16.size a ≤ S8x3200.size a
  k15_off9_inb : ∀ (i : grid15.Coords) (k15_t1 : Fin k15_t1_loop.trips) (k15_t3 : Fin k15_t3_loop.trips), ∀ (k15_h5 : k15_cond5 i k15_t1 = 1#1), ∀ a, (k15_off9 k15_t3) a + S16.size a ≤ S25600.size a
  k15_off10_inb : ∀ (i : grid15.Coords) (k15_t1 : Fin k15_t1_loop.trips), ∀ (k15_h5 : k15_cond5 i k15_t1 = 1#1), ∀ a, (k15_off10 i k15_t1) a + S3200.size a ≤ S1600000.size a
  k15_off11_inb : ∀ (i : grid15.Coords) (k15_t1 : Fin k15_t1_loop.trips), ∀ (k15_h6 : k15_cond6 i k15_t1 = 1#1), ∀ a, (k15_off11 i k15_t1) a + S1x3200.size a ≤ S22x1600000.size a
  k15_off12_inb : ∀ i : grid15.Coords, ∀ (k15_h7 : k15_cond7 i = 1#1), ∀ a, (k15_off12 i) a + S3200.size a ≤ S1600000.size a
  k15_off13_inb : ∀ i : grid15.Coords, ∀ (k15_h8 : k15_cond8 i = 1#1), ∀ a, (k15_off13 i) a + S3200.size a ≤ S1600000.size a
  hcore16 : grid16.bound 0 ≤ τ.nSC
  hsub16 : grid16.bound 1 ≤ τ.nSub
  k16_off1_inb : ∀ i : grid16.Coords, ∀ (r : Fin 2), ∀ a, (k16_off1 i (BitVec.ofNat 32 (32 * r.val))) a + S1x3200.size a ≤ S22x1600000.size a
  k16_t1_ok : k16_t1_loop.OK
  k16_off2_inb : ∀ (i : grid16.Coords) (k16_t1 : Fin k16_t1_loop.trips), ∀ (k16_h1 : k16_cond1 k16_t1 = 1#1), ∀ a, (k16_off2 i k16_t1) a + S3200.size a ≤ S1600000.size a
  k16_t2_ok : ∀ (i : grid16.Coords) (k16_t1 : Fin k16_t1_loop.trips), ∀ (k16_h2 : k16_cond2 i k16_t1 = 1#1), k16_t2_loop.OK
  k16_off3_inb : ∀ (i : grid16.Coords) (k16_t1 : Fin k16_t1_loop.trips) (k16_t2 : Fin k16_t2_loop.trips), ∀ (k16_h2 : k16_cond2 i k16_t1 = 1#1), ∀ a, (k16_off3 k16_t2) a + S1x16.size a ≤ S8x3200.size a
  k16_off4_inb : ∀ (i : grid16.Coords) (k16_t1 : Fin k16_t1_loop.trips) (k16_t2 : Fin k16_t2_loop.trips), ∀ (k16_h2 : k16_cond2 i k16_t1 = 1#1), ∀ a, (k16_off4 k16_t2) a + S16.size a ≤ S25600.size a
  k16_off5_inb : ∀ (i : grid16.Coords) (k16_t1 : Fin k16_t1_loop.trips), ∀ (k16_h2 : k16_cond2 i k16_t1 = 1#1), ∀ a, (k16_off5 i k16_t1) a + S3200.size a ≤ S1600000.size a
  k16_off6_inb : ∀ (i : grid16.Coords) (k16_t1 : Fin k16_t1_loop.trips), ∀ (k16_h3 : k16_cond3 i k16_t1 = 1#1), ∀ a, (k16_off6 i k16_t1) a + S1x3200.size a ≤ S22x1600000.size a
  k16_off7_inb : ∀ (i : grid16.Coords) (k16_t1 : Fin k16_t1_loop.trips), ∀ (k16_h4 : k16_cond4 k16_t1 = 1#1), ∀ a, (k16_off7 i k16_t1) a + S3200.size a ≤ S1600000.size a
  k16_t3_ok : ∀ (i : grid16.Coords) (k16_t1 : Fin k16_t1_loop.trips), ∀ (k16_h5 : k16_cond5 i k16_t1 = 1#1), k16_t3_loop.OK
  k16_off8_inb : ∀ (i : grid16.Coords) (k16_t1 : Fin k16_t1_loop.trips) (k16_t3 : Fin k16_t3_loop.trips), ∀ (k16_h5 : k16_cond5 i k16_t1 = 1#1), ∀ a, (k16_off8 k16_t3) a + S1x16.size a ≤ S8x3200.size a
  k16_off9_inb : ∀ (i : grid16.Coords) (k16_t1 : Fin k16_t1_loop.trips) (k16_t3 : Fin k16_t3_loop.trips), ∀ (k16_h5 : k16_cond5 i k16_t1 = 1#1), ∀ a, (k16_off9 k16_t3) a + S16.size a ≤ S25600.size a
  k16_off10_inb : ∀ (i : grid16.Coords) (k16_t1 : Fin k16_t1_loop.trips), ∀ (k16_h5 : k16_cond5 i k16_t1 = 1#1), ∀ a, (k16_off10 i k16_t1) a + S3200.size a ≤ S1600000.size a
  k16_off11_inb : ∀ (i : grid16.Coords) (k16_t1 : Fin k16_t1_loop.trips), ∀ (k16_h6 : k16_cond6 i k16_t1 = 1#1), ∀ a, (k16_off11 i k16_t1) a + S1x3200.size a ≤ S22x1600000.size a
  k16_off12_inb : ∀ i : grid16.Coords, ∀ (k16_h7 : k16_cond7 i = 1#1), ∀ a, (k16_off12 i) a + S3200.size a ≤ S1600000.size a
  k16_off13_inb : ∀ i : grid16.Coords, ∀ (k16_h8 : k16_cond8 i = 1#1), ∀ a, (k16_off13 i) a + S3200.size a ≤ S1600000.size a
  hcore17 : grid17.bound 0 ≤ τ.nSC
  hsub17 : grid17.bound 1 ≤ τ.nSub
  k17_off1_inb : ∀ i : grid17.Coords, ∀ (r : Fin 2), ∀ a, (k17_off1 i (BitVec.ofNat 32 (32 * r.val))) a + S1x3200.size a ≤ S22x1600000.size a
  k17_t1_ok : k17_t1_loop.OK
  k17_off2_inb : ∀ (i : grid17.Coords) (k17_t1 : Fin k17_t1_loop.trips), ∀ (k17_h1 : k17_cond1 k17_t1 = 1#1), ∀ a, (k17_off2 i k17_t1) a + S3200.size a ≤ S1600000.size a
  k17_t2_ok : ∀ (i : grid17.Coords) (k17_t1 : Fin k17_t1_loop.trips), ∀ (k17_h2 : k17_cond2 i k17_t1 = 1#1), k17_t2_loop.OK
  k17_off3_inb : ∀ (i : grid17.Coords) (k17_t1 : Fin k17_t1_loop.trips) (k17_t2 : Fin k17_t2_loop.trips), ∀ (k17_h2 : k17_cond2 i k17_t1 = 1#1), ∀ a, (k17_off3 k17_t2) a + S1x16.size a ≤ S8x3200.size a
  k17_off4_inb : ∀ (i : grid17.Coords) (k17_t1 : Fin k17_t1_loop.trips) (k17_t2 : Fin k17_t2_loop.trips), ∀ (k17_h2 : k17_cond2 i k17_t1 = 1#1), ∀ a, (k17_off4 k17_t2) a + S16.size a ≤ S25600.size a
  k17_off5_inb : ∀ (i : grid17.Coords) (k17_t1 : Fin k17_t1_loop.trips), ∀ (k17_h2 : k17_cond2 i k17_t1 = 1#1), ∀ a, (k17_off5 i k17_t1) a + S3200.size a ≤ S1600000.size a
  k17_off6_inb : ∀ (i : grid17.Coords) (k17_t1 : Fin k17_t1_loop.trips), ∀ (k17_h3 : k17_cond3 i k17_t1 = 1#1), ∀ a, (k17_off6 i k17_t1) a + S1x3200.size a ≤ S22x1600000.size a
  k17_off7_inb : ∀ (i : grid17.Coords) (k17_t1 : Fin k17_t1_loop.trips), ∀ (k17_h4 : k17_cond4 k17_t1 = 1#1), ∀ a, (k17_off7 i k17_t1) a + S3200.size a ≤ S1600000.size a
  k17_t3_ok : ∀ (i : grid17.Coords) (k17_t1 : Fin k17_t1_loop.trips), ∀ (k17_h5 : k17_cond5 i k17_t1 = 1#1), k17_t3_loop.OK
  k17_off8_inb : ∀ (i : grid17.Coords) (k17_t1 : Fin k17_t1_loop.trips) (k17_t3 : Fin k17_t3_loop.trips), ∀ (k17_h5 : k17_cond5 i k17_t1 = 1#1), ∀ a, (k17_off8 k17_t3) a + S1x16.size a ≤ S8x3200.size a
  k17_off9_inb : ∀ (i : grid17.Coords) (k17_t1 : Fin k17_t1_loop.trips) (k17_t3 : Fin k17_t3_loop.trips), ∀ (k17_h5 : k17_cond5 i k17_t1 = 1#1), ∀ a, (k17_off9 k17_t3) a + S16.size a ≤ S25600.size a
  k17_off10_inb : ∀ (i : grid17.Coords) (k17_t1 : Fin k17_t1_loop.trips), ∀ (k17_h5 : k17_cond5 i k17_t1 = 1#1), ∀ a, (k17_off10 i k17_t1) a + S3200.size a ≤ S1600000.size a
  k17_off11_inb : ∀ (i : grid17.Coords) (k17_t1 : Fin k17_t1_loop.trips), ∀ (k17_h6 : k17_cond6 i k17_t1 = 1#1), ∀ a, (k17_off11 i k17_t1) a + S1x3200.size a ≤ S22x1600000.size a
  k17_off12_inb : ∀ i : grid17.Coords, ∀ (k17_h7 : k17_cond7 i = 1#1), ∀ a, (k17_off12 i) a + S3200.size a ≤ S1600000.size a
  k17_off13_inb : ∀ i : grid17.Coords, ∀ (k17_h8 : k17_cond8 i = 1#1), ∀ a, (k17_off13 i) a + S3200.size a ≤ S1600000.size a
  hcore18 : grid18.bound 0 ≤ τ.nSC
  hsub18 : grid18.bound 1 ≤ τ.nSub
  k18_off1_inb : ∀ i : grid18.Coords, ∀ (r : Fin 2), ∀ a, (k18_off1 i (BitVec.ofNat 32 (32 * r.val))) a + S1x3200.size a ≤ S22x1600000.size a
  k18_t1_ok : k18_t1_loop.OK
  k18_off2_inb : ∀ (i : grid18.Coords) (k18_t1 : Fin k18_t1_loop.trips), ∀ (k18_h1 : k18_cond1 k18_t1 = 1#1), ∀ a, (k18_off2 i k18_t1) a + S3200.size a ≤ S1600000.size a
  k18_t2_ok : ∀ (i : grid18.Coords) (k18_t1 : Fin k18_t1_loop.trips), ∀ (k18_h2 : k18_cond2 i k18_t1 = 1#1), k18_t2_loop.OK
  k18_off3_inb : ∀ (i : grid18.Coords) (k18_t1 : Fin k18_t1_loop.trips) (k18_t2 : Fin k18_t2_loop.trips), ∀ (k18_h2 : k18_cond2 i k18_t1 = 1#1), ∀ a, (k18_off3 k18_t2) a + S1x16.size a ≤ S8x3200.size a
  k18_off4_inb : ∀ (i : grid18.Coords) (k18_t1 : Fin k18_t1_loop.trips) (k18_t2 : Fin k18_t2_loop.trips), ∀ (k18_h2 : k18_cond2 i k18_t1 = 1#1), ∀ a, (k18_off4 k18_t2) a + S16.size a ≤ S25600.size a
  k18_off5_inb : ∀ (i : grid18.Coords) (k18_t1 : Fin k18_t1_loop.trips), ∀ (k18_h2 : k18_cond2 i k18_t1 = 1#1), ∀ a, (k18_off5 i k18_t1) a + S3200.size a ≤ S1600000.size a
  k18_off6_inb : ∀ (i : grid18.Coords) (k18_t1 : Fin k18_t1_loop.trips), ∀ (k18_h3 : k18_cond3 i k18_t1 = 1#1), ∀ a, (k18_off6 i k18_t1) a + S1x3200.size a ≤ S22x1600000.size a
  k18_off7_inb : ∀ (i : grid18.Coords) (k18_t1 : Fin k18_t1_loop.trips), ∀ (k18_h4 : k18_cond4 k18_t1 = 1#1), ∀ a, (k18_off7 i k18_t1) a + S3200.size a ≤ S1600000.size a
  k18_t3_ok : ∀ (i : grid18.Coords) (k18_t1 : Fin k18_t1_loop.trips), ∀ (k18_h5 : k18_cond5 i k18_t1 = 1#1), k18_t3_loop.OK
  k18_off8_inb : ∀ (i : grid18.Coords) (k18_t1 : Fin k18_t1_loop.trips) (k18_t3 : Fin k18_t3_loop.trips), ∀ (k18_h5 : k18_cond5 i k18_t1 = 1#1), ∀ a, (k18_off8 k18_t3) a + S1x16.size a ≤ S8x3200.size a
  k18_off9_inb : ∀ (i : grid18.Coords) (k18_t1 : Fin k18_t1_loop.trips) (k18_t3 : Fin k18_t3_loop.trips), ∀ (k18_h5 : k18_cond5 i k18_t1 = 1#1), ∀ a, (k18_off9 k18_t3) a + S16.size a ≤ S25600.size a
  k18_off10_inb : ∀ (i : grid18.Coords) (k18_t1 : Fin k18_t1_loop.trips), ∀ (k18_h5 : k18_cond5 i k18_t1 = 1#1), ∀ a, (k18_off10 i k18_t1) a + S3200.size a ≤ S1600000.size a
  k18_off11_inb : ∀ (i : grid18.Coords) (k18_t1 : Fin k18_t1_loop.trips), ∀ (k18_h6 : k18_cond6 i k18_t1 = 1#1), ∀ a, (k18_off11 i k18_t1) a + S1x3200.size a ≤ S22x1600000.size a
  k18_off12_inb : ∀ i : grid18.Coords, ∀ (k18_h7 : k18_cond7 i = 1#1), ∀ a, (k18_off12 i) a + S3200.size a ≤ S1600000.size a
  k18_off13_inb : ∀ i : grid18.Coords, ∀ (k18_h8 : k18_cond8 i = 1#1), ∀ a, (k18_off13 i) a + S3200.size a ≤ S1600000.size a
  hcore19 : grid19.bound 0 ≤ τ.nSC
  hsub19 : grid19.bound 1 ≤ τ.nSub
  k19_off1_inb : ∀ i : grid19.Coords, ∀ (r : Fin 2), ∀ a, (k19_off1 i (BitVec.ofNat 32 (32 * r.val))) a + S1x3200.size a ≤ S22x1600000.size a
  k19_t1_ok : k19_t1_loop.OK
  k19_off2_inb : ∀ (i : grid19.Coords) (k19_t1 : Fin k19_t1_loop.trips), ∀ (k19_h1 : k19_cond1 k19_t1 = 1#1), ∀ a, (k19_off2 i k19_t1) a + S3200.size a ≤ S1600000.size a
  k19_t2_ok : ∀ (i : grid19.Coords) (k19_t1 : Fin k19_t1_loop.trips), ∀ (k19_h2 : k19_cond2 i k19_t1 = 1#1), k19_t2_loop.OK
  k19_off3_inb : ∀ (i : grid19.Coords) (k19_t1 : Fin k19_t1_loop.trips) (k19_t2 : Fin k19_t2_loop.trips), ∀ (k19_h2 : k19_cond2 i k19_t1 = 1#1), ∀ a, (k19_off3 k19_t2) a + S1x16.size a ≤ S8x3200.size a
  k19_off4_inb : ∀ (i : grid19.Coords) (k19_t1 : Fin k19_t1_loop.trips) (k19_t2 : Fin k19_t2_loop.trips), ∀ (k19_h2 : k19_cond2 i k19_t1 = 1#1), ∀ a, (k19_off4 k19_t2) a + S16.size a ≤ S25600.size a
  k19_off5_inb : ∀ (i : grid19.Coords) (k19_t1 : Fin k19_t1_loop.trips), ∀ (k19_h2 : k19_cond2 i k19_t1 = 1#1), ∀ a, (k19_off5 i k19_t1) a + S3200.size a ≤ S1600000.size a
  k19_off6_inb : ∀ (i : grid19.Coords) (k19_t1 : Fin k19_t1_loop.trips), ∀ (k19_h3 : k19_cond3 i k19_t1 = 1#1), ∀ a, (k19_off6 i k19_t1) a + S1x3200.size a ≤ S22x1600000.size a
  k19_off7_inb : ∀ (i : grid19.Coords) (k19_t1 : Fin k19_t1_loop.trips), ∀ (k19_h4 : k19_cond4 k19_t1 = 1#1), ∀ a, (k19_off7 i k19_t1) a + S3200.size a ≤ S1600000.size a
  k19_t3_ok : ∀ (i : grid19.Coords) (k19_t1 : Fin k19_t1_loop.trips), ∀ (k19_h5 : k19_cond5 i k19_t1 = 1#1), k19_t3_loop.OK
  k19_off8_inb : ∀ (i : grid19.Coords) (k19_t1 : Fin k19_t1_loop.trips) (k19_t3 : Fin k19_t3_loop.trips), ∀ (k19_h5 : k19_cond5 i k19_t1 = 1#1), ∀ a, (k19_off8 k19_t3) a + S1x16.size a ≤ S8x3200.size a
  k19_off9_inb : ∀ (i : grid19.Coords) (k19_t1 : Fin k19_t1_loop.trips) (k19_t3 : Fin k19_t3_loop.trips), ∀ (k19_h5 : k19_cond5 i k19_t1 = 1#1), ∀ a, (k19_off9 k19_t3) a + S16.size a ≤ S25600.size a
  k19_off10_inb : ∀ (i : grid19.Coords) (k19_t1 : Fin k19_t1_loop.trips), ∀ (k19_h5 : k19_cond5 i k19_t1 = 1#1), ∀ a, (k19_off10 i k19_t1) a + S3200.size a ≤ S1600000.size a
  k19_off11_inb : ∀ (i : grid19.Coords) (k19_t1 : Fin k19_t1_loop.trips), ∀ (k19_h6 : k19_cond6 i k19_t1 = 1#1), ∀ a, (k19_off11 i k19_t1) a + S1x3200.size a ≤ S22x1600000.size a
  k19_off12_inb : ∀ i : grid19.Coords, ∀ (k19_h7 : k19_cond7 i = 1#1), ∀ a, (k19_off12 i) a + S3200.size a ≤ S1600000.size a
  k19_off13_inb : ∀ i : grid19.Coords, ∀ (k19_h8 : k19_cond8 i = 1#1), ∀ a, (k19_off13 i) a + S3200.size a ≤ S1600000.size a
  hcore20 : grid20.bound 0 ≤ τ.nSC
  hsub20 : grid20.bound 1 ≤ τ.nSub
  k20_off1_inb : ∀ i : grid20.Coords, ∀ (r : Fin 2), ∀ a, (k20_off1 i (BitVec.ofNat 32 (32 * r.val))) a + S1x3200.size a ≤ S22x1600000.size a
  k20_t1_ok : k20_t1_loop.OK
  k20_off2_inb : ∀ (i : grid20.Coords) (k20_t1 : Fin k20_t1_loop.trips), ∀ (k20_h1 : k20_cond1 k20_t1 = 1#1), ∀ a, (k20_off2 i k20_t1) a + S3200.size a ≤ S1600000.size a
  k20_t2_ok : ∀ (i : grid20.Coords) (k20_t1 : Fin k20_t1_loop.trips), ∀ (k20_h2 : k20_cond2 i k20_t1 = 1#1), k20_t2_loop.OK
  k20_off3_inb : ∀ (i : grid20.Coords) (k20_t1 : Fin k20_t1_loop.trips) (k20_t2 : Fin k20_t2_loop.trips), ∀ (k20_h2 : k20_cond2 i k20_t1 = 1#1), ∀ a, (k20_off3 k20_t2) a + S1x16.size a ≤ S8x3200.size a
  k20_off4_inb : ∀ (i : grid20.Coords) (k20_t1 : Fin k20_t1_loop.trips) (k20_t2 : Fin k20_t2_loop.trips), ∀ (k20_h2 : k20_cond2 i k20_t1 = 1#1), ∀ a, (k20_off4 k20_t2) a + S16.size a ≤ S25600.size a
  k20_off5_inb : ∀ (i : grid20.Coords) (k20_t1 : Fin k20_t1_loop.trips), ∀ (k20_h2 : k20_cond2 i k20_t1 = 1#1), ∀ a, (k20_off5 i k20_t1) a + S3200.size a ≤ S1600000.size a
  k20_off6_inb : ∀ (i : grid20.Coords) (k20_t1 : Fin k20_t1_loop.trips), ∀ (k20_h3 : k20_cond3 i k20_t1 = 1#1), ∀ a, (k20_off6 i k20_t1) a + S1x3200.size a ≤ S22x1600000.size a
  k20_off7_inb : ∀ (i : grid20.Coords) (k20_t1 : Fin k20_t1_loop.trips), ∀ (k20_h4 : k20_cond4 k20_t1 = 1#1), ∀ a, (k20_off7 i k20_t1) a + S3200.size a ≤ S1600000.size a
  k20_t3_ok : ∀ (i : grid20.Coords) (k20_t1 : Fin k20_t1_loop.trips), ∀ (k20_h5 : k20_cond5 i k20_t1 = 1#1), k20_t3_loop.OK
  k20_off8_inb : ∀ (i : grid20.Coords) (k20_t1 : Fin k20_t1_loop.trips) (k20_t3 : Fin k20_t3_loop.trips), ∀ (k20_h5 : k20_cond5 i k20_t1 = 1#1), ∀ a, (k20_off8 k20_t3) a + S1x16.size a ≤ S8x3200.size a
  k20_off9_inb : ∀ (i : grid20.Coords) (k20_t1 : Fin k20_t1_loop.trips) (k20_t3 : Fin k20_t3_loop.trips), ∀ (k20_h5 : k20_cond5 i k20_t1 = 1#1), ∀ a, (k20_off9 k20_t3) a + S16.size a ≤ S25600.size a
  k20_off10_inb : ∀ (i : grid20.Coords) (k20_t1 : Fin k20_t1_loop.trips), ∀ (k20_h5 : k20_cond5 i k20_t1 = 1#1), ∀ a, (k20_off10 i k20_t1) a + S3200.size a ≤ S1600000.size a
  k20_off11_inb : ∀ (i : grid20.Coords) (k20_t1 : Fin k20_t1_loop.trips), ∀ (k20_h6 : k20_cond6 i k20_t1 = 1#1), ∀ a, (k20_off11 i k20_t1) a + S1x3200.size a ≤ S22x1600000.size a
  k20_off12_inb : ∀ i : grid20.Coords, ∀ (k20_h7 : k20_cond7 i = 1#1), ∀ a, (k20_off12 i) a + S3200.size a ≤ S1600000.size a
  k20_off13_inb : ∀ i : grid20.Coords, ∀ (k20_h8 : k20_cond8 i = 1#1), ∀ a, (k20_off13 i) a + S3200.size a ≤ S1600000.size a
  hcore21 : grid21.bound 0 ≤ τ.nSC
  hsub21 : grid21.bound 1 ≤ τ.nSub
  k21_off1_inb : ∀ i : grid21.Coords, ∀ (r : Fin 2), ∀ a, (k21_off1 i (BitVec.ofNat 32 (32 * r.val))) a + S1x3200.size a ≤ S22x1600000.size a
  k21_t1_ok : k21_t1_loop.OK
  k21_off2_inb : ∀ (i : grid21.Coords) (k21_t1 : Fin k21_t1_loop.trips), ∀ (k21_h1 : k21_cond1 k21_t1 = 1#1), ∀ a, (k21_off2 i k21_t1) a + S3200.size a ≤ S1600000.size a
  k21_t2_ok : ∀ (i : grid21.Coords) (k21_t1 : Fin k21_t1_loop.trips), ∀ (k21_h2 : k21_cond2 i k21_t1 = 1#1), k21_t2_loop.OK
  k21_off3_inb : ∀ (i : grid21.Coords) (k21_t1 : Fin k21_t1_loop.trips) (k21_t2 : Fin k21_t2_loop.trips), ∀ (k21_h2 : k21_cond2 i k21_t1 = 1#1), ∀ a, (k21_off3 k21_t2) a + S1x16.size a ≤ S8x3200.size a
  k21_off4_inb : ∀ (i : grid21.Coords) (k21_t1 : Fin k21_t1_loop.trips) (k21_t2 : Fin k21_t2_loop.trips), ∀ (k21_h2 : k21_cond2 i k21_t1 = 1#1), ∀ a, (k21_off4 k21_t2) a + S16.size a ≤ S25600.size a
  k21_off5_inb : ∀ (i : grid21.Coords) (k21_t1 : Fin k21_t1_loop.trips), ∀ (k21_h2 : k21_cond2 i k21_t1 = 1#1), ∀ a, (k21_off5 i k21_t1) a + S3200.size a ≤ S1600000.size a
  k21_off6_inb : ∀ (i : grid21.Coords) (k21_t1 : Fin k21_t1_loop.trips), ∀ (k21_h3 : k21_cond3 i k21_t1 = 1#1), ∀ a, (k21_off6 i k21_t1) a + S1x3200.size a ≤ S22x1600000.size a
  k21_off7_inb : ∀ (i : grid21.Coords) (k21_t1 : Fin k21_t1_loop.trips), ∀ (k21_h4 : k21_cond4 k21_t1 = 1#1), ∀ a, (k21_off7 i k21_t1) a + S3200.size a ≤ S1600000.size a
  k21_t3_ok : ∀ (i : grid21.Coords) (k21_t1 : Fin k21_t1_loop.trips), ∀ (k21_h5 : k21_cond5 i k21_t1 = 1#1), k21_t3_loop.OK
  k21_off8_inb : ∀ (i : grid21.Coords) (k21_t1 : Fin k21_t1_loop.trips) (k21_t3 : Fin k21_t3_loop.trips), ∀ (k21_h5 : k21_cond5 i k21_t1 = 1#1), ∀ a, (k21_off8 k21_t3) a + S1x16.size a ≤ S8x3200.size a
  k21_off9_inb : ∀ (i : grid21.Coords) (k21_t1 : Fin k21_t1_loop.trips) (k21_t3 : Fin k21_t3_loop.trips), ∀ (k21_h5 : k21_cond5 i k21_t1 = 1#1), ∀ a, (k21_off9 k21_t3) a + S16.size a ≤ S25600.size a
  k21_off10_inb : ∀ (i : grid21.Coords) (k21_t1 : Fin k21_t1_loop.trips), ∀ (k21_h5 : k21_cond5 i k21_t1 = 1#1), ∀ a, (k21_off10 i k21_t1) a + S3200.size a ≤ S1600000.size a
  k21_off11_inb : ∀ (i : grid21.Coords) (k21_t1 : Fin k21_t1_loop.trips), ∀ (k21_h6 : k21_cond6 i k21_t1 = 1#1), ∀ a, (k21_off11 i k21_t1) a + S1x3200.size a ≤ S22x1600000.size a
  k21_off12_inb : ∀ i : grid21.Coords, ∀ (k21_h7 : k21_cond7 i = 1#1), ∀ a, (k21_off12 i) a + S3200.size a ≤ S1600000.size a
  k21_off13_inb : ∀ i : grid21.Coords, ∀ (k21_h8 : k21_cond8 i = 1#1), ∀ a, (k21_off13 i) a + S3200.size a ≤ S1600000.size a

variable [Facts₀]

abbrev cc0_scratch4 : DmaSems sig S_ := SemArray.consecutive 0 S_ hcc0_scratch4
abbrev cc0_scratch5 : DmaSems sig S_ := SemArray.consecutive 1 S_ hcc0_scratch5
abbrev cc0_scratch6 : DmaSems sig S_ := SemArray.consecutive 2 S_ hcc0_scratch6
abbrev cc0_scratch7 : DmaSems sig S_ := SemArray.consecutive 3 S_ hcc0_scratch7
abbrev cc1_scratch4 : DmaSems sig S_ := SemArray.consecutive 4 S_ hcc1_scratch4
abbrev cc1_scratch5 : DmaSems sig S_ := SemArray.consecutive 5 S_ hcc1_scratch5
abbrev cc1_scratch6 : DmaSems sig S_ := SemArray.consecutive 6 S_ hcc1_scratch6
abbrev cc1_scratch7 : DmaSems sig S_ := SemArray.consecutive 7 S_ hcc1_scratch7
abbrev cc2_scratch4 : DmaSems sig S_ := SemArray.consecutive 8 S_ hcc2_scratch4
abbrev cc2_scratch5 : DmaSems sig S_ := SemArray.consecutive 9 S_ hcc2_scratch5
abbrev cc2_scratch6 : DmaSems sig S_ := SemArray.consecutive 10 S_ hcc2_scratch6
abbrev cc2_scratch7 : DmaSems sig S_ := SemArray.consecutive 11 S_ hcc2_scratch7
abbrev cc3_scratch4 : DmaSems sig S_ := SemArray.consecutive 12 S_ hcc3_scratch4
abbrev cc3_scratch5 : DmaSems sig S_ := SemArray.consecutive 13 S_ hcc3_scratch5
abbrev cc3_scratch6 : DmaSems sig S_ := SemArray.consecutive 14 S_ hcc3_scratch6
abbrev cc3_scratch7 : DmaSems sig S_ := SemArray.consecutive 15 S_ hcc3_scratch7
abbrev cc4_scratch4 : DmaSems sig S_ := SemArray.consecutive 16 S_ hcc4_scratch4
abbrev cc4_scratch5 : DmaSems sig S_ := SemArray.consecutive 17 S_ hcc4_scratch5
abbrev cc4_scratch6 : DmaSems sig S_ := SemArray.consecutive 18 S_ hcc4_scratch6
abbrev cc4_scratch7 : DmaSems sig S_ := SemArray.consecutive 19 S_ hcc4_scratch7
abbrev cc5_scratch4 : DmaSems sig S_ := SemArray.consecutive 20 S_ hcc5_scratch4
abbrev cc5_scratch5 : DmaSems sig S_ := SemArray.consecutive 21 S_ hcc5_scratch5
abbrev cc5_scratch6 : DmaSems sig S_ := SemArray.consecutive 22 S_ hcc5_scratch6
abbrev cc5_scratch7 : DmaSems sig S_ := SemArray.consecutive 23 S_ hcc5_scratch7
abbrev cc6_scratch4 : DmaSems sig S_ := SemArray.consecutive 24 S_ hcc6_scratch4
abbrev cc6_scratch5 : DmaSems sig S_ := SemArray.consecutive 25 S_ hcc6_scratch5
abbrev cc6_scratch6 : DmaSems sig S_ := SemArray.consecutive 26 S_ hcc6_scratch6
abbrev cc6_scratch7 : DmaSems sig S_ := SemArray.consecutive 27 S_ hcc6_scratch7
abbrev cc7_scratch4 : DmaSems sig S_ := SemArray.consecutive 28 S_ hcc7_scratch4
abbrev cc7_scratch5 : DmaSems sig S_ := SemArray.consecutive 29 S_ hcc7_scratch5
abbrev cc7_scratch6 : DmaSems sig S_ := SemArray.consecutive 30 S_ hcc7_scratch6
abbrev cc7_scratch7 : DmaSems sig S_ := SemArray.consecutive 31 S_ hcc7_scratch7
abbrev cc8_scratch4 : DmaSems sig S_ := SemArray.consecutive 32 S_ hcc8_scratch4
abbrev cc8_scratch5 : DmaSems sig S_ := SemArray.consecutive 33 S_ hcc8_scratch5
abbrev cc8_scratch6 : DmaSems sig S_ := SemArray.consecutive 34 S_ hcc8_scratch6
abbrev cc8_scratch7 : DmaSems sig S_ := SemArray.consecutive 35 S_ hcc8_scratch7
abbrev cc9_scratch4 : DmaSems sig S_ := SemArray.consecutive 36 S_ hcc9_scratch4
abbrev cc9_scratch5 : DmaSems sig S_ := SemArray.consecutive 37 S_ hcc9_scratch5
abbrev cc9_scratch6 : DmaSems sig S_ := SemArray.consecutive 38 S_ hcc9_scratch6
abbrev cc9_scratch7 : DmaSems sig S_ := SemArray.consecutive 39 S_ hcc9_scratch7
abbrev cc10_scratch4 : DmaSems sig S_ := SemArray.consecutive 40 S_ hcc10_scratch4
abbrev cc10_scratch5 : DmaSems sig S_ := SemArray.consecutive 41 S_ hcc10_scratch5
abbrev cc10_scratch6 : DmaSems sig S_ := SemArray.consecutive 42 S_ hcc10_scratch6
abbrev cc10_scratch7 : DmaSems sig S_ := SemArray.consecutive 43 S_ hcc10_scratch7
abbrev cc11_scratch4 : DmaSems sig S_ := SemArray.consecutive 44 S_ hcc11_scratch4
abbrev cc11_scratch5 : DmaSems sig S_ := SemArray.consecutive 45 S_ hcc11_scratch5
abbrev cc11_scratch6 : DmaSems sig S_ := SemArray.consecutive 46 S_ hcc11_scratch6
abbrev cc11_scratch7 : DmaSems sig S_ := SemArray.consecutive 47 S_ hcc11_scratch7
abbrev cc12_scratch4 : DmaSems sig S_ := SemArray.consecutive 48 S_ hcc12_scratch4
abbrev cc12_scratch5 : DmaSems sig S_ := SemArray.consecutive 49 S_ hcc12_scratch5
abbrev cc12_scratch6 : DmaSems sig S_ := SemArray.consecutive 50 S_ hcc12_scratch6
abbrev cc12_scratch7 : DmaSems sig S_ := SemArray.consecutive 51 S_ hcc12_scratch7
abbrev cc13_scratch4 : DmaSems sig S_ := SemArray.consecutive 52 S_ hcc13_scratch4
abbrev cc13_scratch5 : DmaSems sig S_ := SemArray.consecutive 53 S_ hcc13_scratch5
abbrev cc13_scratch6 : DmaSems sig S_ := SemArray.consecutive 54 S_ hcc13_scratch6
abbrev cc13_scratch7 : DmaSems sig S_ := SemArray.consecutive 55 S_ hcc13_scratch7
abbrev cc14_scratch4 : DmaSems sig S_ := SemArray.consecutive 56 S_ hcc14_scratch4
abbrev cc14_scratch5 : DmaSems sig S_ := SemArray.consecutive 57 S_ hcc14_scratch5
abbrev cc14_scratch6 : DmaSems sig S_ := SemArray.consecutive 58 S_ hcc14_scratch6
abbrev cc14_scratch7 : DmaSems sig S_ := SemArray.consecutive 59 S_ hcc14_scratch7
abbrev cc15_scratch4 : DmaSems sig S_ := SemArray.consecutive 60 S_ hcc15_scratch4
abbrev cc15_scratch5 : DmaSems sig S_ := SemArray.consecutive 61 S_ hcc15_scratch5
abbrev cc15_scratch6 : DmaSems sig S_ := SemArray.consecutive 62 S_ hcc15_scratch6
abbrev cc15_scratch7 : DmaSems sig S_ := SemArray.consecutive 63 S_ hcc15_scratch7
abbrev cc16_scratch4 : DmaSems sig S_ := SemArray.consecutive 64 S_ hcc16_scratch4
abbrev cc16_scratch5 : DmaSems sig S_ := SemArray.consecutive 65 S_ hcc16_scratch5
abbrev cc16_scratch6 : DmaSems sig S_ := SemArray.consecutive 66 S_ hcc16_scratch6
abbrev cc16_scratch7 : DmaSems sig S_ := SemArray.consecutive 67 S_ hcc16_scratch7
abbrev cc17_scratch4 : DmaSems sig S_ := SemArray.consecutive 68 S_ hcc17_scratch4
abbrev cc17_scratch5 : DmaSems sig S_ := SemArray.consecutive 69 S_ hcc17_scratch5
abbrev cc17_scratch6 : DmaSems sig S_ := SemArray.consecutive 70 S_ hcc17_scratch6
abbrev cc17_scratch7 : DmaSems sig S_ := SemArray.consecutive 71 S_ hcc17_scratch7
abbrev cc18_scratch4 : DmaSems sig S_ := SemArray.consecutive 72 S_ hcc18_scratch4
abbrev cc18_scratch5 : DmaSems sig S_ := SemArray.consecutive 73 S_ hcc18_scratch5
abbrev cc18_scratch6 : DmaSems sig S_ := SemArray.consecutive 74 S_ hcc18_scratch6
abbrev cc18_scratch7 : DmaSems sig S_ := SemArray.consecutive 75 S_ hcc18_scratch7
abbrev cc19_scratch4 : DmaSems sig S_ := SemArray.consecutive 76 S_ hcc19_scratch4
abbrev cc19_scratch5 : DmaSems sig S_ := SemArray.consecutive 77 S_ hcc19_scratch5
abbrev cc19_scratch6 : DmaSems sig S_ := SemArray.consecutive 78 S_ hcc19_scratch6
abbrev cc19_scratch7 : DmaSems sig S_ := SemArray.consecutive 79 S_ hcc19_scratch7
abbrev cc20_scratch4 : DmaSems sig S_ := SemArray.consecutive 80 S_ hcc20_scratch4
abbrev cc20_scratch5 : DmaSems sig S_ := SemArray.consecutive 81 S_ hcc20_scratch5
abbrev cc20_scratch6 : DmaSems sig S_ := SemArray.consecutive 82 S_ hcc20_scratch6
abbrev cc20_scratch7 : DmaSems sig S_ := SemArray.consecutive 83 S_ hcc20_scratch7
abbrev cc21_scratch4 : DmaSems sig S_ := SemArray.consecutive 84 S_ hcc21_scratch4
abbrev cc21_scratch5 : DmaSems sig S_ := SemArray.consecutive 85 S_ hcc21_scratch5
abbrev cc21_scratch6 : DmaSems sig S_ := SemArray.consecutive 86 S_ hcc21_scratch6
abbrev cc21_scratch7 : DmaSems sig S_ := SemArray.consecutive 87 S_ hcc21_scratch7

class Facts : Prop extends Facts₀ where

variable [Facts]
-- ==== ReferenceIdeal.lean ====
abbrev S1600000x22 : Shape := ⟨2, ![1600000, 22]⟩
abbrev S1 : Shape := ⟨1, ![1]⟩
abbrev S_ : Shape := ⟨0, ![]⟩
abbrev S1x1 : Shape := ⟨2, ![1, 1]⟩
abbrev S1600000x1 : Shape := ⟨2, ![1600000, 1]⟩

abbrev nBuf : Space → Nat
  | .hbm => 507
  | .vmem => 0
  | .smem => 0
  | _ => 0

abbrev hbmTy0_0 (i : Nat) : BufTy := match i % 128 with
  | 0 => ⟨S1600000x22, .f32⟩
  | 1 => ⟨S1, .i32⟩
  | 2 => ⟨S1, .i32⟩
  | 3 => ⟨S1, .i32⟩
  | 4 => ⟨S1, .i32⟩
  | 5 => ⟨S1, .i32⟩
  | 6 => ⟨S1, .i32⟩
  | 7 => ⟨S1, .i32⟩
  | 8 => ⟨S1, .i32⟩
  | 9 => ⟨S1, .i32⟩
  | 10 => ⟨S1, .i32⟩
  | 11 => ⟨S1, .i32⟩
  | 12 => ⟨S1, .i32⟩
  | 13 => ⟨S1, .i32⟩
  | 14 => ⟨S1, .i32⟩
  | 15 => ⟨S1, .i32⟩
  | 16 => ⟨S1, .i32⟩
  | 17 => ⟨S1, .i32⟩
  | 18 => ⟨S1, .i32⟩
  | 19 => ⟨S1, .i32⟩
  | 20 => ⟨S1, .i32⟩
  | 21 => ⟨S1, .i32⟩
  | 22 => ⟨S1, .i32⟩
  | 23 => ⟨S_, .i32⟩
  | 24 => ⟨S1, .i32⟩
  | 25 => ⟨S1, .i1⟩
  | 26 => ⟨S_, .i32⟩
  | 27 => ⟨S1, .i32⟩
  | 28 => ⟨S1, .i32⟩
  | 29 => ⟨S1, .i32⟩
  | 30 => ⟨S1x1, .i32⟩
  | 31 => ⟨S1, .i32⟩
  | 32 => ⟨S_, .i32⟩
  | 33 => ⟨S1x1, .i32⟩
  | 34 => ⟨S1x1, .i1⟩
  | 35 => ⟨S1x1, .i32⟩
  | 36 => ⟨S1x1, .i1⟩
  | 37 => ⟨S1x1, .i1⟩
  | 38 => ⟨S_, .i1⟩
  | 39 => ⟨S1, .i1⟩
  | 40 => ⟨S1600000x1, .f32⟩
  | 41 => ⟨S1600000x1, .i1⟩
  | 42 => ⟨S_, .f32⟩
  | 43 => ⟨S1600000x1, .f32⟩
  | 44 => ⟨S1600000x1, .f32⟩
  | 45 => ⟨S_, .i32⟩
  | 46 => ⟨S1, .i32⟩
  | 47 => ⟨S1, .i1⟩
  | 48 => ⟨S_, .i32⟩
  | 49 => ⟨S1, .i32⟩
  | 50 => ⟨S1, .i32⟩
  | 51 => ⟨S1, .i32⟩
  | 52 => ⟨S1x1, .i32⟩
  | 53 => ⟨S1, .i32⟩
  | 54 => ⟨S_, .i32⟩
  | 55 => ⟨S1x1, .i32⟩
  | 56 => ⟨S1x1, .i1⟩
  | 57 => ⟨S1x1, .i32⟩
  | 58 => ⟨S1x1, .i1⟩
  | 59 => ⟨S1x1, .i1⟩
  | 60 => ⟨S_, .i1⟩
  | 61 => ⟨S1, .i1⟩
  | 62 => ⟨S1600000x1, .f32⟩
  | 63 => ⟨S1600000x1, .i1⟩
  | 64 => ⟨S_, .f32⟩
  | 65 => ⟨S1600000x1, .f32⟩
  | 66 => ⟨S1600000x1, .f32⟩
  | 67 => ⟨S_, .i32⟩
  | 68 => ⟨S1, .i32⟩
  | 69 => ⟨S1, .i1⟩
  | 70 => ⟨S_, .i32⟩
  | 71 => ⟨S1, .i32⟩
  | 72 => ⟨S1, .i32⟩
  | 73 => ⟨S1, .i32⟩
  | 74 => ⟨S1x1, .i32⟩
  | 75 => ⟨S1, .i32⟩
  | 76 => ⟨S_, .i32⟩
  | 77 => ⟨S1x1, .i32⟩
  | 78 => ⟨S1x1, .i1⟩
  | 79 => ⟨S1x1, .i32⟩
  | 80 => ⟨S1x1, .i1⟩
  | 81 => ⟨S1x1, .i1⟩
  | 82 => ⟨S_, .i1⟩
  | 83 => ⟨S1, .i1⟩
  | 84 => ⟨S1600000x1, .f32⟩
  | 85 => ⟨S1600000x1, .i1⟩
  | 86 => ⟨S_, .f32⟩
  | 87 => ⟨S1600000x1, .f32⟩
  | 88 => ⟨S1600000x1, .f32⟩
  | 89 => ⟨S_, .i32⟩
  | 90 => ⟨S1, .i32⟩
  | 91 => ⟨S1, .i1⟩
  | 92 => ⟨S_, .i32⟩
  | 93 => ⟨S1, .i32⟩
  | 94 => ⟨S1, .i32⟩
  | 95 => ⟨S1, .i32⟩
  | 96 => ⟨S1x1, .i32⟩
  | 97 => ⟨S1, .i32⟩
  | 98 => ⟨S_, .i32⟩
  | 99 => ⟨S1x1, .i32⟩
  | 100 => ⟨S1x1, .i1⟩
  | 101 => ⟨S1x1, .i32⟩
  | 102 => ⟨S1x1, .i1⟩
  | 103 => ⟨S1x1, .i1⟩
  | 104 => ⟨S_, .i1⟩
  | 105 => ⟨S1, .i1⟩
  | 106 => ⟨S1600000x1, .f32⟩
  | 107 => ⟨S1600000x1, .i1⟩
  | 108 => ⟨S_, .f32⟩
  | 109 => ⟨S1600000x1, .f32⟩
  | 110 => ⟨S1600000x1, .f32⟩
  | 111 => ⟨S_, .i32⟩
  | 112 => ⟨S1, .i32⟩
  | 113 => ⟨S1, .i1⟩
  | 114 => ⟨S_, .i32⟩
  | 115 => ⟨S1, .i32⟩
  | 116 => ⟨S1, .i32⟩
  | 117 => ⟨S1, .i32⟩
  | 118 => ⟨S1x1, .i32⟩
  | 119 => ⟨S1, .i32⟩
  | 120 => ⟨S_, .i32⟩
  | 121 => ⟨S1x1, .i32⟩
  | 122 => ⟨S1x1, .i1⟩
  | 123 => ⟨S1x1, .i32⟩
  | 124 => ⟨S1x1, .i1⟩
  | 125 => ⟨S1x1, .i1⟩
  | 126 => ⟨S_, .i1⟩
  | 127 => ⟨S1, .i1⟩
  | _ => ⟨S1600000x22, .f32⟩

abbrev hbmTy0_1 (i : Nat) : BufTy := match i % 128 with
  | 0 => ⟨S1600000x1, .f32⟩
  | 1 => ⟨S1600000x1, .i1⟩
  | 2 => ⟨S_, .f32⟩
  | 3 => ⟨S1600000x1, .f32⟩
  | 4 => ⟨S1600000x1, .f32⟩
  | 5 => ⟨S_, .i32⟩
  | 6 => ⟨S1, .i32⟩
  | 7 => ⟨S1, .i1⟩
  | 8 => ⟨S_, .i32⟩
  | 9 => ⟨S1, .i32⟩
  | 10 => ⟨S1, .i32⟩
  | 11 => ⟨S1, .i32⟩
  | 12 => ⟨S1x1, .i32⟩
  | 13 => ⟨S1, .i32⟩
  | 14 => ⟨S_, .i32⟩
  | 15 => ⟨S1x1, .i32⟩
  | 16 => ⟨S1x1, .i1⟩
  | 17 => ⟨S1x1, .i32⟩
  | 18 => ⟨S1x1, .i1⟩
  | 19 => ⟨S1x1, .i1⟩
  | 20 => ⟨S_, .i1⟩
  | 21 => ⟨S1, .i1⟩
  | 22 => ⟨S1600000x1, .f32⟩
  | 23 => ⟨S1600000x1, .i1⟩
  | 24 => ⟨S_, .f32⟩
  | 25 => ⟨S1600000x1, .f32⟩
  | 26 => ⟨S1600000x1, .f32⟩
  | 27 => ⟨S_, .i32⟩
  | 28 => ⟨S1, .i32⟩
  | 29 => ⟨S1, .i1⟩
  | 30 => ⟨S_, .i32⟩
  | 31 => ⟨S1, .i32⟩
  | 32 => ⟨S1, .i32⟩
  | 33 => ⟨S1, .i32⟩
  | 34 => ⟨S1x1, .i32⟩
  | 35 => ⟨S1, .i32⟩
  | 36 => ⟨S_, .i32⟩
  | 37 => ⟨S1x1, .i32⟩
  | 38 => ⟨S1x1, .i1⟩
  | 39 => ⟨S1x1, .i32⟩
  | 40 => ⟨S1x1, .i1⟩
  | 41 => ⟨S1x1, .i1⟩
  | 42 => ⟨S_, .i1⟩
  | 43 => ⟨S1, .i1⟩
  | 44 => ⟨S1600000x1, .f32⟩
  | 45 => ⟨S1600000x1, .i1⟩
  | 46 => ⟨S_, .f32⟩
  | 47 => ⟨S1600000x1, .f32⟩
  | 48 => ⟨S1600000x1, .f32⟩
  | 49 => ⟨S_, .i32⟩
  | 50 => ⟨S1, .i32⟩
  | 51 => ⟨S1, .i1⟩
  | 52 => ⟨S_, .i32⟩
  | 53 => ⟨S1, .i32⟩
  | 54 => ⟨S1, .i32⟩
  | 55 => ⟨S1, .i32⟩
  | 56 => ⟨S1x1, .i32⟩
  | 57 => ⟨S1, .i32⟩
  | 58 => ⟨S_, .i32⟩
  | 59 => ⟨S1x1, .i32⟩
  | 60 => ⟨S1x1, .i1⟩
  | 61 => ⟨S1x1, .i32⟩
  | 62 => ⟨S1x1, .i1⟩
  | 63 => ⟨S1x1, .i1⟩
  | 64 => ⟨S_, .i1⟩
  | 65 => ⟨S1, .i1⟩
  | 66 => ⟨S1600000x1, .f32⟩
  | 67 => ⟨S1600000x1, .i1⟩
  | 68 => ⟨S_, .f32⟩
  | 69 => ⟨S1600000x1, .f32⟩
  | 70 => ⟨S1600000x1, .f32⟩
  | 71 => ⟨S_, .i32⟩
  | 72 => ⟨S1, .i32⟩
  | 73 => ⟨S1, .i1⟩
  | 74 => ⟨S_, .i32⟩
  | 75 => ⟨S1, .i32⟩
  | 76 => ⟨S1, .i32⟩
  | 77 => ⟨S1, .i32⟩
  | 78 => ⟨S1x1, .i32⟩
  | 79 => ⟨S1, .i32⟩
  | 80 => ⟨S_, .i32⟩
  | 81 => ⟨S1x1, .i32⟩
  | 82 => ⟨S1x1, .i1⟩
  | 83 => ⟨S1x1, .i32⟩
  | 84 => ⟨S1x1, .i1⟩
  | 85 => ⟨S1x1, .i1⟩
  | 86 => ⟨S_, .i1⟩
  | 87 => ⟨S1, .i1⟩
  | 88 => ⟨S1600000x1, .f32⟩
  | 89 => ⟨S1600000x1, .i1⟩
  | 90 => ⟨S_, .f32⟩
  | 91 => ⟨S1600000x1, .f32⟩
  | 92 => ⟨S1600000x1, .f32⟩
  | 93 => ⟨S_, .i32⟩
  | 94 => ⟨S1, .i32⟩
  | 95 => ⟨S1, .i1⟩
  | 96 => ⟨S_, .i32⟩
  | 97 => ⟨S1, .i32⟩
  | 98 => ⟨S1, .i32⟩
  | 99 => ⟨S1, .i32⟩
  | 100 => ⟨S1x1, .i32⟩
  | 101 => ⟨S1, .i32⟩
  | 102 => ⟨S_, .i32⟩
  | 103 => ⟨S1x1, .i32⟩
  | 104 => ⟨S1x1, .i1⟩
  | 105 => ⟨S1x1, .i32⟩
  | 106 => ⟨S1x1, .i1⟩
  | 107 => ⟨S1x1, .i1⟩
  | 108 => ⟨S_, .i1⟩
  | 109 => ⟨S1, .i1⟩
  | 110 => ⟨S1600000x1, .f32⟩
  | 111 => ⟨S1600000x1, .i1⟩
  | 112 => ⟨S_, .f32⟩
  | 113 => ⟨S1600000x1, .f32⟩
  | 114 => ⟨S1600000x1, .f32⟩
  | 115 => ⟨S_, .i32⟩
  | 116 => ⟨S1, .i32⟩
  | 117 => ⟨S1, .i1⟩
  | 118 => ⟨S_, .i32⟩
  | 119 => ⟨S1, .i32⟩
  | 120 => ⟨S1, .i32⟩
  | 121 => ⟨S1, .i32⟩
  | 122 => ⟨S1x1, .i32⟩
  | 123 => ⟨S1, .i32⟩
  | 124 => ⟨S_, .i32⟩
  | 125 => ⟨S1x1, .i32⟩
  | 126 => ⟨S1x1, .i1⟩
  | 127 => ⟨S1x1, .i32⟩
  | _ => ⟨S1600000x22, .f32⟩

abbrev hbmTy0_2 (i : Nat) : BufTy := match i % 128 with
  | 0 => ⟨S1x1, .i1⟩
  | 1 => ⟨S1x1, .i1⟩
  | 2 => ⟨S_, .i1⟩
  | 3 => ⟨S1, .i1⟩
  | 4 => ⟨S1600000x1, .f32⟩
  | 5 => ⟨S1600000x1, .i1⟩
  | 6 => ⟨S_, .f32⟩
  | 7 => ⟨S1600000x1, .f32⟩
  | 8 => ⟨S1600000x1, .f32⟩
  | 9 => ⟨S_, .i32⟩
  | 10 => ⟨S1, .i32⟩
  | 11 => ⟨S1, .i1⟩
  | 12 => ⟨S_, .i32⟩
  | 13 => ⟨S1, .i32⟩
  | 14 => ⟨S1, .i32⟩
  | 15 => ⟨S1, .i32⟩
  | 16 => ⟨S1x1, .i32⟩
  | 17 => ⟨S1, .i32⟩
  | 18 => ⟨S_, .i32⟩
  | 19 => ⟨S1x1, .i32⟩
  | 20 => ⟨S1x1, .i1⟩
  | 21 => ⟨S1x1, .i32⟩
  | 22 => ⟨S1x1, .i1⟩
  | 23 => ⟨S1x1, .i1⟩
  | 24 => ⟨S_, .i1⟩
  | 25 => ⟨S1, .i1⟩
  | 26 => ⟨S1600000x1, .f32⟩
  | 27 => ⟨S1600000x1, .i1⟩
  | 28 => ⟨S_, .f32⟩
  | 29 => ⟨S1600000x1, .f32⟩
  | 30 => ⟨S1600000x1, .f32⟩
  | 31 => ⟨S_, .i32⟩
  | 32 => ⟨S1, .i32⟩
  | 33 => ⟨S1, .i1⟩
  | 34 => ⟨S_, .i32⟩
  | 35 => ⟨S1, .i32⟩
  | 36 => ⟨S1, .i32⟩
  | 37 => ⟨S1, .i32⟩
  | 38 => ⟨S1x1, .i32⟩
  | 39 => ⟨S1, .i32⟩
  | 40 => ⟨S_, .i32⟩
  | 41 => ⟨S1x1, .i32⟩
  | 42 => ⟨S1x1, .i1⟩
  | 43 => ⟨S1x1, .i32⟩
  | 44 => ⟨S1x1, .i1⟩
  | 45 => ⟨S1x1, .i1⟩
  | 46 => ⟨S_, .i1⟩
  | 47 => ⟨S1, .i1⟩
  | 48 => ⟨S1600000x1, .f32⟩
  | 49 => ⟨S1600000x1, .i1⟩
  | 50 => ⟨S_, .f32⟩
  | 51 => ⟨S1600000x1, .f32⟩
  | 52 => ⟨S1600000x1, .f32⟩
  | 53 => ⟨S_, .i32⟩
  | 54 => ⟨S1, .i32⟩
  | 55 => ⟨S1, .i1⟩
  | 56 => ⟨S_, .i32⟩
  | 57 => ⟨S1, .i32⟩
  | 58 => ⟨S1, .i32⟩
  | 59 => ⟨S1, .i32⟩
  | 60 => ⟨S1x1, .i32⟩
  | 61 => ⟨S1, .i32⟩
  | 62 => ⟨S_, .i32⟩
  | 63 => ⟨S1x1, .i32⟩
  | 64 => ⟨S1x1, .i1⟩
  | 65 => ⟨S1x1, .i32⟩
  | 66 => ⟨S1x1, .i1⟩
  | 67 => ⟨S1x1, .i1⟩
  | 68 => ⟨S_, .i1⟩
  | 69 => ⟨S1, .i1⟩
  | 70 => ⟨S1600000x1, .f32⟩
  | 71 => ⟨S1600000x1, .i1⟩
  | 72 => ⟨S_, .f32⟩
  | 73 => ⟨S1600000x1, .f32⟩
  | 74 => ⟨S1600000x1, .f32⟩
  | 75 => ⟨S_, .i32⟩
  | 76 => ⟨S1, .i32⟩
  | 77 => ⟨S1, .i1⟩
  | 78 => ⟨S_, .i32⟩
  | 79 => ⟨S1, .i32⟩
  | 80 => ⟨S1, .i32⟩
  | 81 => ⟨S1, .i32⟩
  | 82 => ⟨S1x1, .i32⟩
  | 83 => ⟨S1, .i32⟩
  | 84 => ⟨S_, .i32⟩
  | 85 => ⟨S1x1, .i32⟩
  | 86 => ⟨S1x1, .i1⟩
  | 87 => ⟨S1x1, .i32⟩
  | 88 => ⟨S1x1, .i1⟩
  | 89 => ⟨S1x1, .i1⟩
  | 90 => ⟨S_, .i1⟩
  | 91 => ⟨S1, .i1⟩
  | 92 => ⟨S1600000x1, .f32⟩
  | 93 => ⟨S1600000x1, .i1⟩
  | 94 => ⟨S_, .f32⟩
  | 95 => ⟨S1600000x1, .f32⟩
  | 96 => ⟨S1600000x1, .f32⟩
  | 97 => ⟨S_, .i32⟩
  | 98 => ⟨S1, .i32⟩
  | 99 => ⟨S1, .i1⟩
  | 100 => ⟨S_, .i32⟩
  | 101 => ⟨S1, .i32⟩
  | 102 => ⟨S1, .i32⟩
  | 103 => ⟨S1, .i32⟩
  | 104 => ⟨S1x1, .i32⟩
  | 105 => ⟨S1, .i32⟩
  | 106 => ⟨S_, .i32⟩
  | 107 => ⟨S1x1, .i32⟩
  | 108 => ⟨S1x1, .i1⟩
  | 109 => ⟨S1x1, .i32⟩
  | 110 => ⟨S1x1, .i1⟩
  | 111 => ⟨S1x1, .i1⟩
  | 112 => ⟨S_, .i1⟩
  | 113 => ⟨S1, .i1⟩
  | 114 => ⟨S1600000x1, .f32⟩
  | 115 => ⟨S1600000x1, .i1⟩
  | 116 => ⟨S_, .f32⟩
  | 117 => ⟨S1600000x1, .f32⟩
  | 118 => ⟨S1600000x1, .f32⟩
  | 119 => ⟨S_, .i32⟩
  | 120 => ⟨S1, .i32⟩
  | 121 => ⟨S1, .i1⟩
  | 122 => ⟨S_, .i32⟩
  | 123 => ⟨S1, .i32⟩
  | 124 => ⟨S1, .i32⟩
  | 125 => ⟨S1, .i32⟩
  | 126 => ⟨S1x1, .i32⟩
  | 127 => ⟨S1, .i32⟩
  | _ => ⟨S1600000x22, .f32⟩

abbrev hbmTy0_3 (i : Nat) : BufTy := match i % 128 with
  | 0 => ⟨S_, .i32⟩
  | 1 => ⟨S1x1, .i32⟩
  | 2 => ⟨S1x1, .i1⟩
  | 3 => ⟨S1x1, .i32⟩
  | 4 => ⟨S1x1, .i1⟩
  | 5 => ⟨S1x1, .i1⟩
  | 6 => ⟨S_, .i1⟩
  | 7 => ⟨S1, .i1⟩
  | 8 => ⟨S1600000x1, .f32⟩
  | 9 => ⟨S1600000x1, .i1⟩
  | 10 => ⟨S_, .f32⟩
  | 11 => ⟨S1600000x1, .f32⟩
  | 12 => ⟨S1600000x1, .f32⟩
  | 13 => ⟨S_, .i32⟩
  | 14 => ⟨S1, .i32⟩
  | 15 => ⟨S1, .i1⟩
  | 16 => ⟨S_, .i32⟩
  | 17 => ⟨S1, .i32⟩
  | 18 => ⟨S1, .i32⟩
  | 19 => ⟨S1, .i32⟩
  | 20 => ⟨S1x1, .i32⟩
  | 21 => ⟨S1, .i32⟩
  | 22 => ⟨S_, .i32⟩
  | 23 => ⟨S1x1, .i32⟩
  | 24 => ⟨S1x1, .i1⟩
  | 25 => ⟨S1x1, .i32⟩
  | 26 => ⟨S1x1, .i1⟩
  | 27 => ⟨S1x1, .i1⟩
  | 28 => ⟨S_, .i1⟩
  | 29 => ⟨S1, .i1⟩
  | 30 => ⟨S1600000x1, .f32⟩
  | 31 => ⟨S1600000x1, .i1⟩
  | 32 => ⟨S_, .f32⟩
  | 33 => ⟨S1600000x1, .f32⟩
  | 34 => ⟨S1600000x1, .f32⟩
  | 35 => ⟨S_, .i32⟩
  | 36 => ⟨S1, .i32⟩
  | 37 => ⟨S1, .i1⟩
  | 38 => ⟨S_, .i32⟩
  | 39 => ⟨S1, .i32⟩
  | 40 => ⟨S1, .i32⟩
  | 41 => ⟨S1, .i32⟩
  | 42 => ⟨S1x1, .i32⟩
  | 43 => ⟨S1, .i32⟩
  | 44 => ⟨S_, .i32⟩
  | 45 => ⟨S1x1, .i32⟩
  | 46 => ⟨S1x1, .i1⟩
  | 47 => ⟨S1x1, .i32⟩
  | 48 => ⟨S1x1, .i1⟩
  | 49 => ⟨S1x1, .i1⟩
  | 50 => ⟨S_, .i1⟩
  | 51 => ⟨S1, .i1⟩
  | 52 => ⟨S1600000x1, .f32⟩
  | 53 => ⟨S1600000x1, .i1⟩
  | 54 => ⟨S_, .f32⟩
  | 55 => ⟨S1600000x1, .f32⟩
  | 56 => ⟨S1600000x1, .f32⟩
  | 57 => ⟨S_, .i32⟩
  | 58 => ⟨S1, .i32⟩
  | 59 => ⟨S1, .i1⟩
  | 60 => ⟨S_, .i32⟩
  | 61 => ⟨S1, .i32⟩
  | 62 => ⟨S1, .i32⟩
  | 63 => ⟨S1, .i32⟩
  | 64 => ⟨S1x1, .i32⟩
  | 65 => ⟨S1, .i32⟩
  | 66 => ⟨S_, .i32⟩
  | 67 => ⟨S1x1, .i32⟩
  | 68 => ⟨S1x1, .i1⟩
  | 69 => ⟨S1x1, .i32⟩
  | 70 => ⟨S1x1, .i1⟩
  | 71 => ⟨S1x1, .i1⟩
  | 72 => ⟨S_, .i1⟩
  | 73 => ⟨S1, .i1⟩
  | 74 => ⟨S1600000x1, .f32⟩
  | 75 => ⟨S1600000x1, .i1⟩
  | 76 => ⟨S_, .f32⟩
  | 77 => ⟨S1600000x1, .f32⟩
  | 78 => ⟨S1600000x1, .f32⟩
  | 79 => ⟨S_, .i32⟩
  | 80 => ⟨S1, .i32⟩
  | 81 => ⟨S1, .i1⟩
  | 82 => ⟨S_, .i32⟩
  | 83 => ⟨S1, .i32⟩
  | 84 => ⟨S1, .i32⟩
  | 85 => ⟨S1, .i32⟩
  | 86 => ⟨S1x1, .i32⟩
  | 87 => ⟨S1, .i32⟩
  | 88 => ⟨S_, .i32⟩
  | 89 => ⟨S1x1, .i32⟩
  | 90 => ⟨S1x1, .i1⟩
  | 91 => ⟨S1x1, .i32⟩
  | 92 => ⟨S1x1, .i1⟩
  | 93 => ⟨S1x1, .i1⟩
  | 94 => ⟨S_, .i1⟩
  | 95 => ⟨S1, .i1⟩
  | 96 => ⟨S1600000x1, .f32⟩
  | 97 => ⟨S1600000x1, .i1⟩
  | 98 => ⟨S_, .f32⟩
  | 99 => ⟨S1600000x1, .f32⟩
  | 100 => ⟨S1600000x1, .f32⟩
  | 101 => ⟨S_, .i32⟩
  | 102 => ⟨S1, .i32⟩
  | 103 => ⟨S1, .i1⟩
  | 104 => ⟨S_, .i32⟩
  | 105 => ⟨S1, .i32⟩
  | 106 => ⟨S1, .i32⟩
  | 107 => ⟨S1, .i32⟩
  | 108 => ⟨S1x1, .i32⟩
  | 109 => ⟨S1, .i32⟩
  | 110 => ⟨S_, .i32⟩
  | 111 => ⟨S1x1, .i32⟩
  | 112 => ⟨S1x1, .i1⟩
  | 113 => ⟨S1x1, .i32⟩
  | 114 => ⟨S1x1, .i1⟩
  | 115 => ⟨S1x1, .i1⟩
  | 116 => ⟨S_, .i1⟩
  | 117 => ⟨S1, .i1⟩
  | 118 => ⟨S1600000x1, .f32⟩
  | 119 => ⟨S1600000x1, .i1⟩
  | 120 => ⟨S_, .f32⟩
  | 121 => ⟨S1600000x1, .f32⟩
  | 122 => ⟨S1600000x1, .f32⟩
  | _ => ⟨S1600000x22, .f32⟩

abbrev hbmTy (i : Nat) : BufTy := match i / 128 with
  | 0 => hbmTy0_0 i
  | 1 => hbmTy0_1 i
  | 2 => hbmTy0_2 i
  | 3 => hbmTy0_3 i
  | _ => ⟨S1600000x22, .f32⟩

abbrev bufTy : (tb : Table) → Fin (tcTables nBuf tb) → BufTy
  | .hbm, ⟨i, _⟩ => hbmTy i
  | _, _ => ⟨S1600000x22, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_c : Ref sig .tc := ⟨.hbm, 1, rfl⟩
abbrev main_c_0 : Ref sig .tc := ⟨.hbm, 2, rfl⟩
abbrev main_c_1 : Ref sig .tc := ⟨.hbm, 3, rfl⟩
abbrev main_c_2 : Ref sig .tc := ⟨.hbm, 4, rfl⟩
abbrev main_c_3 : Ref sig .tc := ⟨.hbm, 5, rfl⟩
abbrev main_c_4 : Ref sig .tc := ⟨.hbm, 6, rfl⟩
abbrev main_c_5 : Ref sig .tc := ⟨.hbm, 7, rfl⟩
abbrev main_c_6 : Ref sig .tc := ⟨.hbm, 8, rfl⟩
abbrev main_c_7 : Ref sig .tc := ⟨.hbm, 9, rfl⟩
abbrev main_c_8 : Ref sig .tc := ⟨.hbm, 10, rfl⟩
abbrev main_c_9 : Ref sig .tc := ⟨.hbm, 11, rfl⟩
abbrev main_c_10 : Ref sig .tc := ⟨.hbm, 12, rfl⟩
abbrev main_c_11 : Ref sig .tc := ⟨.hbm, 13, rfl⟩
abbrev main_c_12 : Ref sig .tc := ⟨.hbm, 14, rfl⟩
abbrev main_c_13 : Ref sig .tc := ⟨.hbm, 15, rfl⟩
abbrev main_c_14 : Ref sig .tc := ⟨.hbm, 16, rfl⟩
abbrev main_c_15 : Ref sig .tc := ⟨.hbm, 17, rfl⟩
abbrev main_c_16 : Ref sig .tc := ⟨.hbm, 18, rfl⟩
abbrev main_c_17 : Ref sig .tc := ⟨.hbm, 19, rfl⟩
abbrev main_c_18 : Ref sig .tc := ⟨.hbm, 20, rfl⟩
abbrev main_c_19 : Ref sig .tc := ⟨.hbm, 21, rfl⟩
abbrev main_c_20 : Ref sig .tc := ⟨.hbm, 22, rfl⟩
abbrev main_call0_c : Ref sig .tc := ⟨.hbm, 23, rfl⟩
abbrev main_call0_v0 : Ref sig .tc := ⟨.hbm, 24, rfl⟩
abbrev main_call0_v1 : Ref sig .tc := ⟨.hbm, 25, rfl⟩
abbrev main_call0_c_0 : Ref sig .tc := ⟨.hbm, 26, rfl⟩
abbrev main_call0_v2 : Ref sig .tc := ⟨.hbm, 27, rfl⟩
abbrev main_call0_v3 : Ref sig .tc := ⟨.hbm, 28, rfl⟩
abbrev main_call0_v4 : Ref sig .tc := ⟨.hbm, 29, rfl⟩
abbrev main_call0_v5 : Ref sig .tc := ⟨.hbm, 30, rfl⟩
abbrev main_call0_c_1 : Ref sig .tc := ⟨.hbm, 31, rfl⟩
abbrev main_call0_c_2 : Ref sig .tc := ⟨.hbm, 32, rfl⟩
abbrev main_call0_v6 : Ref sig .tc := ⟨.hbm, 33, rfl⟩
abbrev main_call0_v7 : Ref sig .tc := ⟨.hbm, 34, rfl⟩
abbrev main_call0_v8 : Ref sig .tc := ⟨.hbm, 35, rfl⟩
abbrev main_call0_v9 : Ref sig .tc := ⟨.hbm, 36, rfl⟩
abbrev main_call0_v10 : Ref sig .tc := ⟨.hbm, 37, rfl⟩
abbrev main_call0_c_3 : Ref sig .tc := ⟨.hbm, 38, rfl⟩
abbrev main_call0_v11 : Ref sig .tc := ⟨.hbm, 39, rfl⟩
abbrev main_call0_v12 : Ref sig .tc := ⟨.hbm, 40, rfl⟩
abbrev main_call0_v13 : Ref sig .tc := ⟨.hbm, 41, rfl⟩
abbrev main_call0_cst : Ref sig .tc := ⟨.hbm, 42, rfl⟩
abbrev main_call0_v14 : Ref sig .tc := ⟨.hbm, 43, rfl⟩
abbrev main_v0 : Ref sig .tc := ⟨.hbm, 44, rfl⟩
abbrev main_call1_c : Ref sig .tc := ⟨.hbm, 45, rfl⟩
abbrev main_call1_v0 : Ref sig .tc := ⟨.hbm, 46, rfl⟩
abbrev main_call1_v1 : Ref sig .tc := ⟨.hbm, 47, rfl⟩
abbrev main_call1_c_0 : Ref sig .tc := ⟨.hbm, 48, rfl⟩
abbrev main_call1_v2 : Ref sig .tc := ⟨.hbm, 49, rfl⟩
abbrev main_call1_v3 : Ref sig .tc := ⟨.hbm, 50, rfl⟩
abbrev main_call1_v4 : Ref sig .tc := ⟨.hbm, 51, rfl⟩
abbrev main_call1_v5 : Ref sig .tc := ⟨.hbm, 52, rfl⟩
abbrev main_call1_c_1 : Ref sig .tc := ⟨.hbm, 53, rfl⟩
abbrev main_call1_c_2 : Ref sig .tc := ⟨.hbm, 54, rfl⟩
abbrev main_call1_v6 : Ref sig .tc := ⟨.hbm, 55, rfl⟩
abbrev main_call1_v7 : Ref sig .tc := ⟨.hbm, 56, rfl⟩
abbrev main_call1_v8 : Ref sig .tc := ⟨.hbm, 57, rfl⟩
abbrev main_call1_v9 : Ref sig .tc := ⟨.hbm, 58, rfl⟩
abbrev main_call1_v10 : Ref sig .tc := ⟨.hbm, 59, rfl⟩
abbrev main_call1_c_3 : Ref sig .tc := ⟨.hbm, 60, rfl⟩
abbrev main_call1_v11 : Ref sig .tc := ⟨.hbm, 61, rfl⟩
abbrev main_call1_v12 : Ref sig .tc := ⟨.hbm, 62, rfl⟩
abbrev main_call1_v13 : Ref sig .tc := ⟨.hbm, 63, rfl⟩
abbrev main_call1_cst : Ref sig .tc := ⟨.hbm, 64, rfl⟩
abbrev main_call1_v14 : Ref sig .tc := ⟨.hbm, 65, rfl⟩
abbrev main_v1 : Ref sig .tc := ⟨.hbm, 66, rfl⟩
abbrev main_call2_c : Ref sig .tc := ⟨.hbm, 67, rfl⟩
abbrev main_call2_v0 : Ref sig .tc := ⟨.hbm, 68, rfl⟩
abbrev main_call2_v1 : Ref sig .tc := ⟨.hbm, 69, rfl⟩
abbrev main_call2_c_0 : Ref sig .tc := ⟨.hbm, 70, rfl⟩
abbrev main_call2_v2 : Ref sig .tc := ⟨.hbm, 71, rfl⟩
abbrev main_call2_v3 : Ref sig .tc := ⟨.hbm, 72, rfl⟩
abbrev main_call2_v4 : Ref sig .tc := ⟨.hbm, 73, rfl⟩
abbrev main_call2_v5 : Ref sig .tc := ⟨.hbm, 74, rfl⟩
abbrev main_call2_c_1 : Ref sig .tc := ⟨.hbm, 75, rfl⟩
abbrev main_call2_c_2 : Ref sig .tc := ⟨.hbm, 76, rfl⟩
abbrev main_call2_v6 : Ref sig .tc := ⟨.hbm, 77, rfl⟩
abbrev main_call2_v7 : Ref sig .tc := ⟨.hbm, 78, rfl⟩
abbrev main_call2_v8 : Ref sig .tc := ⟨.hbm, 79, rfl⟩
abbrev main_call2_v9 : Ref sig .tc := ⟨.hbm, 80, rfl⟩
abbrev main_call2_v10 : Ref sig .tc := ⟨.hbm, 81, rfl⟩
abbrev main_call2_c_3 : Ref sig .tc := ⟨.hbm, 82, rfl⟩
abbrev main_call2_v11 : Ref sig .tc := ⟨.hbm, 83, rfl⟩
abbrev main_call2_v12 : Ref sig .tc := ⟨.hbm, 84, rfl⟩
abbrev main_call2_v13 : Ref sig .tc := ⟨.hbm, 85, rfl⟩
abbrev main_call2_cst : Ref sig .tc := ⟨.hbm, 86, rfl⟩
abbrev main_call2_v14 : Ref sig .tc := ⟨.hbm, 87, rfl⟩
abbrev main_v2 : Ref sig .tc := ⟨.hbm, 88, rfl⟩
abbrev main_call3_c : Ref sig .tc := ⟨.hbm, 89, rfl⟩
abbrev main_call3_v0 : Ref sig .tc := ⟨.hbm, 90, rfl⟩
abbrev main_call3_v1 : Ref sig .tc := ⟨.hbm, 91, rfl⟩
abbrev main_call3_c_0 : Ref sig .tc := ⟨.hbm, 92, rfl⟩
abbrev main_call3_v2 : Ref sig .tc := ⟨.hbm, 93, rfl⟩
abbrev main_call3_v3 : Ref sig .tc := ⟨.hbm, 94, rfl⟩
abbrev main_call3_v4 : Ref sig .tc := ⟨.hbm, 95, rfl⟩
abbrev main_call3_v5 : Ref sig .tc := ⟨.hbm, 96, rfl⟩
abbrev main_call3_c_1 : Ref sig .tc := ⟨.hbm, 97, rfl⟩
abbrev main_call3_c_2 : Ref sig .tc := ⟨.hbm, 98, rfl⟩
abbrev main_call3_v6 : Ref sig .tc := ⟨.hbm, 99, rfl⟩
abbrev main_call3_v7 : Ref sig .tc := ⟨.hbm, 100, rfl⟩
abbrev main_call3_v8 : Ref sig .tc := ⟨.hbm, 101, rfl⟩
abbrev main_call3_v9 : Ref sig .tc := ⟨.hbm, 102, rfl⟩
abbrev main_call3_v10 : Ref sig .tc := ⟨.hbm, 103, rfl⟩
abbrev main_call3_c_3 : Ref sig .tc := ⟨.hbm, 104, rfl⟩
abbrev main_call3_v11 : Ref sig .tc := ⟨.hbm, 105, rfl⟩
abbrev main_call3_v12 : Ref sig .tc := ⟨.hbm, 106, rfl⟩
abbrev main_call3_v13 : Ref sig .tc := ⟨.hbm, 107, rfl⟩
abbrev main_call3_cst : Ref sig .tc := ⟨.hbm, 108, rfl⟩
abbrev main_call3_v14 : Ref sig .tc := ⟨.hbm, 109, rfl⟩
abbrev main_v3 : Ref sig .tc := ⟨.hbm, 110, rfl⟩
abbrev main_call4_c : Ref sig .tc := ⟨.hbm, 111, rfl⟩
abbrev main_call4_v0 : Ref sig .tc := ⟨.hbm, 112, rfl⟩
abbrev main_call4_v1 : Ref sig .tc := ⟨.hbm, 113, rfl⟩
abbrev main_call4_c_0 : Ref sig .tc := ⟨.hbm, 114, rfl⟩
abbrev main_call4_v2 : Ref sig .tc := ⟨.hbm, 115, rfl⟩
abbrev main_call4_v3 : Ref sig .tc := ⟨.hbm, 116, rfl⟩
abbrev main_call4_v4 : Ref sig .tc := ⟨.hbm, 117, rfl⟩
abbrev main_call4_v5 : Ref sig .tc := ⟨.hbm, 118, rfl⟩
abbrev main_call4_c_1 : Ref sig .tc := ⟨.hbm, 119, rfl⟩
abbrev main_call4_c_2 : Ref sig .tc := ⟨.hbm, 120, rfl⟩
abbrev main_call4_v6 : Ref sig .tc := ⟨.hbm, 121, rfl⟩
abbrev main_call4_v7 : Ref sig .tc := ⟨.hbm, 122, rfl⟩
abbrev main_call4_v8 : Ref sig .tc := ⟨.hbm, 123, rfl⟩
abbrev main_call4_v9 : Ref sig .tc := ⟨.hbm, 124, rfl⟩
abbrev main_call4_v10 : Ref sig .tc := ⟨.hbm, 125, rfl⟩
abbrev main_call4_c_3 : Ref sig .tc := ⟨.hbm, 126, rfl⟩
abbrev main_call4_v11 : Ref sig .tc := ⟨.hbm, 127, rfl⟩
abbrev main_call4_v12 : Ref sig .tc := ⟨.hbm, 128, rfl⟩
abbrev main_call4_v13 : Ref sig .tc := ⟨.hbm, 129, rfl⟩
abbrev main_call4_cst : Ref sig .tc := ⟨.hbm, 130, rfl⟩
abbrev main_call4_v14 : Ref sig .tc := ⟨.hbm, 131, rfl⟩
abbrev main_v4 : Ref sig .tc := ⟨.hbm, 132, rfl⟩
abbrev main_call5_c : Ref sig .tc := ⟨.hbm, 133, rfl⟩
abbrev main_call5_v0 : Ref sig .tc := ⟨.hbm, 134, rfl⟩
abbrev main_call5_v1 : Ref sig .tc := ⟨.hbm, 135, rfl⟩
abbrev main_call5_c_0 : Ref sig .tc := ⟨.hbm, 136, rfl⟩
abbrev main_call5_v2 : Ref sig .tc := ⟨.hbm, 137, rfl⟩
abbrev main_call5_v3 : Ref sig .tc := ⟨.hbm, 138, rfl⟩
abbrev main_call5_v4 : Ref sig .tc := ⟨.hbm, 139, rfl⟩
abbrev main_call5_v5 : Ref sig .tc := ⟨.hbm, 140, rfl⟩
abbrev main_call5_c_1 : Ref sig .tc := ⟨.hbm, 141, rfl⟩
abbrev main_call5_c_2 : Ref sig .tc := ⟨.hbm, 142, rfl⟩
abbrev main_call5_v6 : Ref sig .tc := ⟨.hbm, 143, rfl⟩
abbrev main_call5_v7 : Ref sig .tc := ⟨.hbm, 144, rfl⟩
abbrev main_call5_v8 : Ref sig .tc := ⟨.hbm, 145, rfl⟩
abbrev main_call5_v9 : Ref sig .tc := ⟨.hbm, 146, rfl⟩
abbrev main_call5_v10 : Ref sig .tc := ⟨.hbm, 147, rfl⟩
abbrev main_call5_c_3 : Ref sig .tc := ⟨.hbm, 148, rfl⟩
abbrev main_call5_v11 : Ref sig .tc := ⟨.hbm, 149, rfl⟩
abbrev main_call5_v12 : Ref sig .tc := ⟨.hbm, 150, rfl⟩
abbrev main_call5_v13 : Ref sig .tc := ⟨.hbm, 151, rfl⟩
abbrev main_call5_cst : Ref sig .tc := ⟨.hbm, 152, rfl⟩
abbrev main_call5_v14 : Ref sig .tc := ⟨.hbm, 153, rfl⟩
abbrev main_v5 : Ref sig .tc := ⟨.hbm, 154, rfl⟩
abbrev main_call6_c : Ref sig .tc := ⟨.hbm, 155, rfl⟩
abbrev main_call6_v0 : Ref sig .tc := ⟨.hbm, 156, rfl⟩
abbrev main_call6_v1 : Ref sig .tc := ⟨.hbm, 157, rfl⟩
abbrev main_call6_c_0 : Ref sig .tc := ⟨.hbm, 158, rfl⟩
abbrev main_call6_v2 : Ref sig .tc := ⟨.hbm, 159, rfl⟩
abbrev main_call6_v3 : Ref sig .tc := ⟨.hbm, 160, rfl⟩
abbrev main_call6_v4 : Ref sig .tc := ⟨.hbm, 161, rfl⟩
abbrev main_call6_v5 : Ref sig .tc := ⟨.hbm, 162, rfl⟩
abbrev main_call6_c_1 : Ref sig .tc := ⟨.hbm, 163, rfl⟩
abbrev main_call6_c_2 : Ref sig .tc := ⟨.hbm, 164, rfl⟩
abbrev main_call6_v6 : Ref sig .tc := ⟨.hbm, 165, rfl⟩
abbrev main_call6_v7 : Ref sig .tc := ⟨.hbm, 166, rfl⟩
abbrev main_call6_v8 : Ref sig .tc := ⟨.hbm, 167, rfl⟩
abbrev main_call6_v9 : Ref sig .tc := ⟨.hbm, 168, rfl⟩
abbrev main_call6_v10 : Ref sig .tc := ⟨.hbm, 169, rfl⟩
abbrev main_call6_c_3 : Ref sig .tc := ⟨.hbm, 170, rfl⟩
abbrev main_call6_v11 : Ref sig .tc := ⟨.hbm, 171, rfl⟩
abbrev main_call6_v12 : Ref sig .tc := ⟨.hbm, 172, rfl⟩
abbrev main_call6_v13 : Ref sig .tc := ⟨.hbm, 173, rfl⟩
abbrev main_call6_cst : Ref sig .tc := ⟨.hbm, 174, rfl⟩
abbrev main_call6_v14 : Ref sig .tc := ⟨.hbm, 175, rfl⟩
abbrev main_v6 : Ref sig .tc := ⟨.hbm, 176, rfl⟩
abbrev main_call7_c : Ref sig .tc := ⟨.hbm, 177, rfl⟩
abbrev main_call7_v0 : Ref sig .tc := ⟨.hbm, 178, rfl⟩
abbrev main_call7_v1 : Ref sig .tc := ⟨.hbm, 179, rfl⟩
abbrev main_call7_c_0 : Ref sig .tc := ⟨.hbm, 180, rfl⟩
abbrev main_call7_v2 : Ref sig .tc := ⟨.hbm, 181, rfl⟩
abbrev main_call7_v3 : Ref sig .tc := ⟨.hbm, 182, rfl⟩
abbrev main_call7_v4 : Ref sig .tc := ⟨.hbm, 183, rfl⟩
abbrev main_call7_v5 : Ref sig .tc := ⟨.hbm, 184, rfl⟩
abbrev main_call7_c_1 : Ref sig .tc := ⟨.hbm, 185, rfl⟩
abbrev main_call7_c_2 : Ref sig .tc := ⟨.hbm, 186, rfl⟩
abbrev main_call7_v6 : Ref sig .tc := ⟨.hbm, 187, rfl⟩
abbrev main_call7_v7 : Ref sig .tc := ⟨.hbm, 188, rfl⟩
abbrev main_call7_v8 : Ref sig .tc := ⟨.hbm, 189, rfl⟩
abbrev main_call7_v9 : Ref sig .tc := ⟨.hbm, 190, rfl⟩
abbrev main_call7_v10 : Ref sig .tc := ⟨.hbm, 191, rfl⟩
abbrev main_call7_c_3 : Ref sig .tc := ⟨.hbm, 192, rfl⟩
abbrev main_call7_v11 : Ref sig .tc := ⟨.hbm, 193, rfl⟩
abbrev main_call7_v12 : Ref sig .tc := ⟨.hbm, 194, rfl⟩
abbrev main_call7_v13 : Ref sig .tc := ⟨.hbm, 195, rfl⟩
abbrev main_call7_cst : Ref sig .tc := ⟨.hbm, 196, rfl⟩
abbrev main_call7_v14 : Ref sig .tc := ⟨.hbm, 197, rfl⟩
abbrev main_v7 : Ref sig .tc := ⟨.hbm, 198, rfl⟩
abbrev main_call8_c : Ref sig .tc := ⟨.hbm, 199, rfl⟩
abbrev main_call8_v0 : Ref sig .tc := ⟨.hbm, 200, rfl⟩
abbrev main_call8_v1 : Ref sig .tc := ⟨.hbm, 201, rfl⟩
abbrev main_call8_c_0 : Ref sig .tc := ⟨.hbm, 202, rfl⟩
abbrev main_call8_v2 : Ref sig .tc := ⟨.hbm, 203, rfl⟩
abbrev main_call8_v3 : Ref sig .tc := ⟨.hbm, 204, rfl⟩
abbrev main_call8_v4 : Ref sig .tc := ⟨.hbm, 205, rfl⟩
abbrev main_call8_v5 : Ref sig .tc := ⟨.hbm, 206, rfl⟩
abbrev main_call8_c_1 : Ref sig .tc := ⟨.hbm, 207, rfl⟩
abbrev main_call8_c_2 : Ref sig .tc := ⟨.hbm, 208, rfl⟩
abbrev main_call8_v6 : Ref sig .tc := ⟨.hbm, 209, rfl⟩
abbrev main_call8_v7 : Ref sig .tc := ⟨.hbm, 210, rfl⟩
abbrev main_call8_v8 : Ref sig .tc := ⟨.hbm, 211, rfl⟩
abbrev main_call8_v9 : Ref sig .tc := ⟨.hbm, 212, rfl⟩
abbrev main_call8_v10 : Ref sig .tc := ⟨.hbm, 213, rfl⟩
abbrev main_call8_c_3 : Ref sig .tc := ⟨.hbm, 214, rfl⟩
abbrev main_call8_v11 : Ref sig .tc := ⟨.hbm, 215, rfl⟩
abbrev main_call8_v12 : Ref sig .tc := ⟨.hbm, 216, rfl⟩
abbrev main_call8_v13 : Ref sig .tc := ⟨.hbm, 217, rfl⟩
abbrev main_call8_cst : Ref sig .tc := ⟨.hbm, 218, rfl⟩
abbrev main_call8_v14 : Ref sig .tc := ⟨.hbm, 219, rfl⟩
abbrev main_v8 : Ref sig .tc := ⟨.hbm, 220, rfl⟩
abbrev main_call9_c : Ref sig .tc := ⟨.hbm, 221, rfl⟩
abbrev main_call9_v0 : Ref sig .tc := ⟨.hbm, 222, rfl⟩
abbrev main_call9_v1 : Ref sig .tc := ⟨.hbm, 223, rfl⟩
abbrev main_call9_c_0 : Ref sig .tc := ⟨.hbm, 224, rfl⟩
abbrev main_call9_v2 : Ref sig .tc := ⟨.hbm, 225, rfl⟩
abbrev main_call9_v3 : Ref sig .tc := ⟨.hbm, 226, rfl⟩
abbrev main_call9_v4 : Ref sig .tc := ⟨.hbm, 227, rfl⟩
abbrev main_call9_v5 : Ref sig .tc := ⟨.hbm, 228, rfl⟩
abbrev main_call9_c_1 : Ref sig .tc := ⟨.hbm, 229, rfl⟩
abbrev main_call9_c_2 : Ref sig .tc := ⟨.hbm, 230, rfl⟩
abbrev main_call9_v6 : Ref sig .tc := ⟨.hbm, 231, rfl⟩
abbrev main_call9_v7 : Ref sig .tc := ⟨.hbm, 232, rfl⟩
abbrev main_call9_v8 : Ref sig .tc := ⟨.hbm, 233, rfl⟩
abbrev main_call9_v9 : Ref sig .tc := ⟨.hbm, 234, rfl⟩
abbrev main_call9_v10 : Ref sig .tc := ⟨.hbm, 235, rfl⟩
abbrev main_call9_c_3 : Ref sig .tc := ⟨.hbm, 236, rfl⟩
abbrev main_call9_v11 : Ref sig .tc := ⟨.hbm, 237, rfl⟩
abbrev main_call9_v12 : Ref sig .tc := ⟨.hbm, 238, rfl⟩
abbrev main_call9_v13 : Ref sig .tc := ⟨.hbm, 239, rfl⟩
abbrev main_call9_cst : Ref sig .tc := ⟨.hbm, 240, rfl⟩
abbrev main_call9_v14 : Ref sig .tc := ⟨.hbm, 241, rfl⟩
abbrev main_v9 : Ref sig .tc := ⟨.hbm, 242, rfl⟩
abbrev main_call10_c : Ref sig .tc := ⟨.hbm, 243, rfl⟩
abbrev main_call10_v0 : Ref sig .tc := ⟨.hbm, 244, rfl⟩
abbrev main_call10_v1 : Ref sig .tc := ⟨.hbm, 245, rfl⟩
abbrev main_call10_c_0 : Ref sig .tc := ⟨.hbm, 246, rfl⟩
abbrev main_call10_v2 : Ref sig .tc := ⟨.hbm, 247, rfl⟩
abbrev main_call10_v3 : Ref sig .tc := ⟨.hbm, 248, rfl⟩
abbrev main_call10_v4 : Ref sig .tc := ⟨.hbm, 249, rfl⟩
abbrev main_call10_v5 : Ref sig .tc := ⟨.hbm, 250, rfl⟩
abbrev main_call10_c_1 : Ref sig .tc := ⟨.hbm, 251, rfl⟩
abbrev main_call10_c_2 : Ref sig .tc := ⟨.hbm, 252, rfl⟩
abbrev main_call10_v6 : Ref sig .tc := ⟨.hbm, 253, rfl⟩
abbrev main_call10_v7 : Ref sig .tc := ⟨.hbm, 254, rfl⟩
abbrev main_call10_v8 : Ref sig .tc := ⟨.hbm, 255, rfl⟩
abbrev main_call10_v9 : Ref sig .tc := ⟨.hbm, 256, rfl⟩
abbrev main_call10_v10 : Ref sig .tc := ⟨.hbm, 257, rfl⟩
abbrev main_call10_c_3 : Ref sig .tc := ⟨.hbm, 258, rfl⟩
abbrev main_call10_v11 : Ref sig .tc := ⟨.hbm, 259, rfl⟩
abbrev main_call10_v12 : Ref sig .tc := ⟨.hbm, 260, rfl⟩
abbrev main_call10_v13 : Ref sig .tc := ⟨.hbm, 261, rfl⟩
abbrev main_call10_cst : Ref sig .tc := ⟨.hbm, 262, rfl⟩
abbrev main_call10_v14 : Ref sig .tc := ⟨.hbm, 263, rfl⟩
abbrev main_v10 : Ref sig .tc := ⟨.hbm, 264, rfl⟩
abbrev main_call11_c : Ref sig .tc := ⟨.hbm, 265, rfl⟩
abbrev main_call11_v0 : Ref sig .tc := ⟨.hbm, 266, rfl⟩
abbrev main_call11_v1 : Ref sig .tc := ⟨.hbm, 267, rfl⟩
abbrev main_call11_c_0 : Ref sig .tc := ⟨.hbm, 268, rfl⟩
abbrev main_call11_v2 : Ref sig .tc := ⟨.hbm, 269, rfl⟩
abbrev main_call11_v3 : Ref sig .tc := ⟨.hbm, 270, rfl⟩
abbrev main_call11_v4 : Ref sig .tc := ⟨.hbm, 271, rfl⟩
abbrev main_call11_v5 : Ref sig .tc := ⟨.hbm, 272, rfl⟩
abbrev main_call11_c_1 : Ref sig .tc := ⟨.hbm, 273, rfl⟩
abbrev main_call11_c_2 : Ref sig .tc := ⟨.hbm, 274, rfl⟩
abbrev main_call11_v6 : Ref sig .tc := ⟨.hbm, 275, rfl⟩
abbrev main_call11_v7 : Ref sig .tc := ⟨.hbm, 276, rfl⟩
abbrev main_call11_v8 : Ref sig .tc := ⟨.hbm, 277, rfl⟩
abbrev main_call11_v9 : Ref sig .tc := ⟨.hbm, 278, rfl⟩
abbrev main_call11_v10 : Ref sig .tc := ⟨.hbm, 279, rfl⟩
abbrev main_call11_c_3 : Ref sig .tc := ⟨.hbm, 280, rfl⟩
abbrev main_call11_v11 : Ref sig .tc := ⟨.hbm, 281, rfl⟩
abbrev main_call11_v12 : Ref sig .tc := ⟨.hbm, 282, rfl⟩
abbrev main_call11_v13 : Ref sig .tc := ⟨.hbm, 283, rfl⟩
abbrev main_call11_cst : Ref sig .tc := ⟨.hbm, 284, rfl⟩
abbrev main_call11_v14 : Ref sig .tc := ⟨.hbm, 285, rfl⟩
abbrev main_v11 : Ref sig .tc := ⟨.hbm, 286, rfl⟩
abbrev main_call12_c : Ref sig .tc := ⟨.hbm, 287, rfl⟩
abbrev main_call12_v0 : Ref sig .tc := ⟨.hbm, 288, rfl⟩
abbrev main_call12_v1 : Ref sig .tc := ⟨.hbm, 289, rfl⟩
abbrev main_call12_c_0 : Ref sig .tc := ⟨.hbm, 290, rfl⟩
abbrev main_call12_v2 : Ref sig .tc := ⟨.hbm, 291, rfl⟩
abbrev main_call12_v3 : Ref sig .tc := ⟨.hbm, 292, rfl⟩
abbrev main_call12_v4 : Ref sig .tc := ⟨.hbm, 293, rfl⟩
abbrev main_call12_v5 : Ref sig .tc := ⟨.hbm, 294, rfl⟩
abbrev main_call12_c_1 : Ref sig .tc := ⟨.hbm, 295, rfl⟩
abbrev main_call12_c_2 : Ref sig .tc := ⟨.hbm, 296, rfl⟩
abbrev main_call12_v6 : Ref sig .tc := ⟨.hbm, 297, rfl⟩
abbrev main_call12_v7 : Ref sig .tc := ⟨.hbm, 298, rfl⟩
abbrev main_call12_v8 : Ref sig .tc := ⟨.hbm, 299, rfl⟩
abbrev main_call12_v9 : Ref sig .tc := ⟨.hbm, 300, rfl⟩
abbrev main_call12_v10 : Ref sig .tc := ⟨.hbm, 301, rfl⟩
abbrev main_call12_c_3 : Ref sig .tc := ⟨.hbm, 302, rfl⟩
abbrev main_call12_v11 : Ref sig .tc := ⟨.hbm, 303, rfl⟩
abbrev main_call12_v12 : Ref sig .tc := ⟨.hbm, 304, rfl⟩
abbrev main_call12_v13 : Ref sig .tc := ⟨.hbm, 305, rfl⟩
abbrev main_call12_cst : Ref sig .tc := ⟨.hbm, 306, rfl⟩
abbrev main_call12_v14 : Ref sig .tc := ⟨.hbm, 307, rfl⟩
abbrev main_v12 : Ref sig .tc := ⟨.hbm, 308, rfl⟩
abbrev main_call13_c : Ref sig .tc := ⟨.hbm, 309, rfl⟩
abbrev main_call13_v0 : Ref sig .tc := ⟨.hbm, 310, rfl⟩
abbrev main_call13_v1 : Ref sig .tc := ⟨.hbm, 311, rfl⟩
abbrev main_call13_c_0 : Ref sig .tc := ⟨.hbm, 312, rfl⟩
abbrev main_call13_v2 : Ref sig .tc := ⟨.hbm, 313, rfl⟩
abbrev main_call13_v3 : Ref sig .tc := ⟨.hbm, 314, rfl⟩
abbrev main_call13_v4 : Ref sig .tc := ⟨.hbm, 315, rfl⟩
abbrev main_call13_v5 : Ref sig .tc := ⟨.hbm, 316, rfl⟩
abbrev main_call13_c_1 : Ref sig .tc := ⟨.hbm, 317, rfl⟩
abbrev main_call13_c_2 : Ref sig .tc := ⟨.hbm, 318, rfl⟩
abbrev main_call13_v6 : Ref sig .tc := ⟨.hbm, 319, rfl⟩
abbrev main_call13_v7 : Ref sig .tc := ⟨.hbm, 320, rfl⟩
abbrev main_call13_v8 : Ref sig .tc := ⟨.hbm, 321, rfl⟩
abbrev main_call13_v9 : Ref sig .tc := ⟨.hbm, 322, rfl⟩
abbrev main_call13_v10 : Ref sig .tc := ⟨.hbm, 323, rfl⟩
abbrev main_call13_c_3 : Ref sig .tc := ⟨.hbm, 324, rfl⟩
abbrev main_call13_v11 : Ref sig .tc := ⟨.hbm, 325, rfl⟩
abbrev main_call13_v12 : Ref sig .tc := ⟨.hbm, 326, rfl⟩
abbrev main_call13_v13 : Ref sig .tc := ⟨.hbm, 327, rfl⟩
abbrev main_call13_cst : Ref sig .tc := ⟨.hbm, 328, rfl⟩
abbrev main_call13_v14 : Ref sig .tc := ⟨.hbm, 329, rfl⟩
abbrev main_v13 : Ref sig .tc := ⟨.hbm, 330, rfl⟩
abbrev main_call14_c : Ref sig .tc := ⟨.hbm, 331, rfl⟩
abbrev main_call14_v0 : Ref sig .tc := ⟨.hbm, 332, rfl⟩
abbrev main_call14_v1 : Ref sig .tc := ⟨.hbm, 333, rfl⟩
abbrev main_call14_c_0 : Ref sig .tc := ⟨.hbm, 334, rfl⟩
abbrev main_call14_v2 : Ref sig .tc := ⟨.hbm, 335, rfl⟩
abbrev main_call14_v3 : Ref sig .tc := ⟨.hbm, 336, rfl⟩
abbrev main_call14_v4 : Ref sig .tc := ⟨.hbm, 337, rfl⟩
abbrev main_call14_v5 : Ref sig .tc := ⟨.hbm, 338, rfl⟩
abbrev main_call14_c_1 : Ref sig .tc := ⟨.hbm, 339, rfl⟩
abbrev main_call14_c_2 : Ref sig .tc := ⟨.hbm, 340, rfl⟩
abbrev main_call14_v6 : Ref sig .tc := ⟨.hbm, 341, rfl⟩
abbrev main_call14_v7 : Ref sig .tc := ⟨.hbm, 342, rfl⟩
abbrev main_call14_v8 : Ref sig .tc := ⟨.hbm, 343, rfl⟩
abbrev main_call14_v9 : Ref sig .tc := ⟨.hbm, 344, rfl⟩
abbrev main_call14_v10 : Ref sig .tc := ⟨.hbm, 345, rfl⟩
abbrev main_call14_c_3 : Ref sig .tc := ⟨.hbm, 346, rfl⟩
abbrev main_call14_v11 : Ref sig .tc := ⟨.hbm, 347, rfl⟩
abbrev main_call14_v12 : Ref sig .tc := ⟨.hbm, 348, rfl⟩
abbrev main_call14_v13 : Ref sig .tc := ⟨.hbm, 349, rfl⟩
abbrev main_call14_cst : Ref sig .tc := ⟨.hbm, 350, rfl⟩
abbrev main_call14_v14 : Ref sig .tc := ⟨.hbm, 351, rfl⟩
abbrev main_v14 : Ref sig .tc := ⟨.hbm, 352, rfl⟩
abbrev main_call15_c : Ref sig .tc := ⟨.hbm, 353, rfl⟩
abbrev main_call15_v0 : Ref sig .tc := ⟨.hbm, 354, rfl⟩
abbrev main_call15_v1 : Ref sig .tc := ⟨.hbm, 355, rfl⟩
abbrev main_call15_c_0 : Ref sig .tc := ⟨.hbm, 356, rfl⟩
abbrev main_call15_v2 : Ref sig .tc := ⟨.hbm, 357, rfl⟩
abbrev main_call15_v3 : Ref sig .tc := ⟨.hbm, 358, rfl⟩
abbrev main_call15_v4 : Ref sig .tc := ⟨.hbm, 359, rfl⟩
abbrev main_call15_v5 : Ref sig .tc := ⟨.hbm, 360, rfl⟩
abbrev main_call15_c_1 : Ref sig .tc := ⟨.hbm, 361, rfl⟩
abbrev main_call15_c_2 : Ref sig .tc := ⟨.hbm, 362, rfl⟩
abbrev main_call15_v6 : Ref sig .tc := ⟨.hbm, 363, rfl⟩
abbrev main_call15_v7 : Ref sig .tc := ⟨.hbm, 364, rfl⟩
abbrev main_call15_v8 : Ref sig .tc := ⟨.hbm, 365, rfl⟩
abbrev main_call15_v9 : Ref sig .tc := ⟨.hbm, 366, rfl⟩
abbrev main_call15_v10 : Ref sig .tc := ⟨.hbm, 367, rfl⟩
abbrev main_call15_c_3 : Ref sig .tc := ⟨.hbm, 368, rfl⟩
abbrev main_call15_v11 : Ref sig .tc := ⟨.hbm, 369, rfl⟩
abbrev main_call15_v12 : Ref sig .tc := ⟨.hbm, 370, rfl⟩
abbrev main_call15_v13 : Ref sig .tc := ⟨.hbm, 371, rfl⟩
abbrev main_call15_cst : Ref sig .tc := ⟨.hbm, 372, rfl⟩
abbrev main_call15_v14 : Ref sig .tc := ⟨.hbm, 373, rfl⟩
abbrev main_v15 : Ref sig .tc := ⟨.hbm, 374, rfl⟩
abbrev main_call16_c : Ref sig .tc := ⟨.hbm, 375, rfl⟩
abbrev main_call16_v0 : Ref sig .tc := ⟨.hbm, 376, rfl⟩
abbrev main_call16_v1 : Ref sig .tc := ⟨.hbm, 377, rfl⟩
abbrev main_call16_c_0 : Ref sig .tc := ⟨.hbm, 378, rfl⟩
abbrev main_call16_v2 : Ref sig .tc := ⟨.hbm, 379, rfl⟩
abbrev main_call16_v3 : Ref sig .tc := ⟨.hbm, 380, rfl⟩
abbrev main_call16_v4 : Ref sig .tc := ⟨.hbm, 381, rfl⟩
abbrev main_call16_v5 : Ref sig .tc := ⟨.hbm, 382, rfl⟩
abbrev main_call16_c_1 : Ref sig .tc := ⟨.hbm, 383, rfl⟩
abbrev main_call16_c_2 : Ref sig .tc := ⟨.hbm, 384, rfl⟩
abbrev main_call16_v6 : Ref sig .tc := ⟨.hbm, 385, rfl⟩
abbrev main_call16_v7 : Ref sig .tc := ⟨.hbm, 386, rfl⟩
abbrev main_call16_v8 : Ref sig .tc := ⟨.hbm, 387, rfl⟩
abbrev main_call16_v9 : Ref sig .tc := ⟨.hbm, 388, rfl⟩
abbrev main_call16_v10 : Ref sig .tc := ⟨.hbm, 389, rfl⟩
abbrev main_call16_c_3 : Ref sig .tc := ⟨.hbm, 390, rfl⟩
abbrev main_call16_v11 : Ref sig .tc := ⟨.hbm, 391, rfl⟩
abbrev main_call16_v12 : Ref sig .tc := ⟨.hbm, 392, rfl⟩
abbrev main_call16_v13 : Ref sig .tc := ⟨.hbm, 393, rfl⟩
abbrev main_call16_cst : Ref sig .tc := ⟨.hbm, 394, rfl⟩
abbrev main_call16_v14 : Ref sig .tc := ⟨.hbm, 395, rfl⟩
abbrev main_v16 : Ref sig .tc := ⟨.hbm, 396, rfl⟩
abbrev main_call17_c : Ref sig .tc := ⟨.hbm, 397, rfl⟩
abbrev main_call17_v0 : Ref sig .tc := ⟨.hbm, 398, rfl⟩
abbrev main_call17_v1 : Ref sig .tc := ⟨.hbm, 399, rfl⟩
abbrev main_call17_c_0 : Ref sig .tc := ⟨.hbm, 400, rfl⟩
abbrev main_call17_v2 : Ref sig .tc := ⟨.hbm, 401, rfl⟩
abbrev main_call17_v3 : Ref sig .tc := ⟨.hbm, 402, rfl⟩
abbrev main_call17_v4 : Ref sig .tc := ⟨.hbm, 403, rfl⟩
abbrev main_call17_v5 : Ref sig .tc := ⟨.hbm, 404, rfl⟩
abbrev main_call17_c_1 : Ref sig .tc := ⟨.hbm, 405, rfl⟩
abbrev main_call17_c_2 : Ref sig .tc := ⟨.hbm, 406, rfl⟩
abbrev main_call17_v6 : Ref sig .tc := ⟨.hbm, 407, rfl⟩
abbrev main_call17_v7 : Ref sig .tc := ⟨.hbm, 408, rfl⟩
abbrev main_call17_v8 : Ref sig .tc := ⟨.hbm, 409, rfl⟩
abbrev main_call17_v9 : Ref sig .tc := ⟨.hbm, 410, rfl⟩
abbrev main_call17_v10 : Ref sig .tc := ⟨.hbm, 411, rfl⟩
abbrev main_call17_c_3 : Ref sig .tc := ⟨.hbm, 412, rfl⟩
abbrev main_call17_v11 : Ref sig .tc := ⟨.hbm, 413, rfl⟩
abbrev main_call17_v12 : Ref sig .tc := ⟨.hbm, 414, rfl⟩
abbrev main_call17_v13 : Ref sig .tc := ⟨.hbm, 415, rfl⟩
abbrev main_call17_cst : Ref sig .tc := ⟨.hbm, 416, rfl⟩
abbrev main_call17_v14 : Ref sig .tc := ⟨.hbm, 417, rfl⟩
abbrev main_v17 : Ref sig .tc := ⟨.hbm, 418, rfl⟩
abbrev main_call18_c : Ref sig .tc := ⟨.hbm, 419, rfl⟩
abbrev main_call18_v0 : Ref sig .tc := ⟨.hbm, 420, rfl⟩
abbrev main_call18_v1 : Ref sig .tc := ⟨.hbm, 421, rfl⟩
abbrev main_call18_c_0 : Ref sig .tc := ⟨.hbm, 422, rfl⟩
abbrev main_call18_v2 : Ref sig .tc := ⟨.hbm, 423, rfl⟩
abbrev main_call18_v3 : Ref sig .tc := ⟨.hbm, 424, rfl⟩
abbrev main_call18_v4 : Ref sig .tc := ⟨.hbm, 425, rfl⟩
abbrev main_call18_v5 : Ref sig .tc := ⟨.hbm, 426, rfl⟩
abbrev main_call18_c_1 : Ref sig .tc := ⟨.hbm, 427, rfl⟩
abbrev main_call18_c_2 : Ref sig .tc := ⟨.hbm, 428, rfl⟩
abbrev main_call18_v6 : Ref sig .tc := ⟨.hbm, 429, rfl⟩
abbrev main_call18_v7 : Ref sig .tc := ⟨.hbm, 430, rfl⟩
abbrev main_call18_v8 : Ref sig .tc := ⟨.hbm, 431, rfl⟩
abbrev main_call18_v9 : Ref sig .tc := ⟨.hbm, 432, rfl⟩
abbrev main_call18_v10 : Ref sig .tc := ⟨.hbm, 433, rfl⟩
abbrev main_call18_c_3 : Ref sig .tc := ⟨.hbm, 434, rfl⟩
abbrev main_call18_v11 : Ref sig .tc := ⟨.hbm, 435, rfl⟩
abbrev main_call18_v12 : Ref sig .tc := ⟨.hbm, 436, rfl⟩
abbrev main_call18_v13 : Ref sig .tc := ⟨.hbm, 437, rfl⟩
abbrev main_call18_cst : Ref sig .tc := ⟨.hbm, 438, rfl⟩
abbrev main_call18_v14 : Ref sig .tc := ⟨.hbm, 439, rfl⟩
abbrev main_v18 : Ref sig .tc := ⟨.hbm, 440, rfl⟩
abbrev main_call19_c : Ref sig .tc := ⟨.hbm, 441, rfl⟩
abbrev main_call19_v0 : Ref sig .tc := ⟨.hbm, 442, rfl⟩
abbrev main_call19_v1 : Ref sig .tc := ⟨.hbm, 443, rfl⟩
abbrev main_call19_c_0 : Ref sig .tc := ⟨.hbm, 444, rfl⟩
abbrev main_call19_v2 : Ref sig .tc := ⟨.hbm, 445, rfl⟩
abbrev main_call19_v3 : Ref sig .tc := ⟨.hbm, 446, rfl⟩
abbrev main_call19_v4 : Ref sig .tc := ⟨.hbm, 447, rfl⟩
abbrev main_call19_v5 : Ref sig .tc := ⟨.hbm, 448, rfl⟩
abbrev main_call19_c_1 : Ref sig .tc := ⟨.hbm, 449, rfl⟩
abbrev main_call19_c_2 : Ref sig .tc := ⟨.hbm, 450, rfl⟩
abbrev main_call19_v6 : Ref sig .tc := ⟨.hbm, 451, rfl⟩
abbrev main_call19_v7 : Ref sig .tc := ⟨.hbm, 452, rfl⟩
abbrev main_call19_v8 : Ref sig .tc := ⟨.hbm, 453, rfl⟩
abbrev main_call19_v9 : Ref sig .tc := ⟨.hbm, 454, rfl⟩
abbrev main_call19_v10 : Ref sig .tc := ⟨.hbm, 455, rfl⟩
abbrev main_call19_c_3 : Ref sig .tc := ⟨.hbm, 456, rfl⟩
abbrev main_call19_v11 : Ref sig .tc := ⟨.hbm, 457, rfl⟩
abbrev main_call19_v12 : Ref sig .tc := ⟨.hbm, 458, rfl⟩
abbrev main_call19_v13 : Ref sig .tc := ⟨.hbm, 459, rfl⟩
abbrev main_call19_cst : Ref sig .tc := ⟨.hbm, 460, rfl⟩
abbrev main_call19_v14 : Ref sig .tc := ⟨.hbm, 461, rfl⟩
abbrev main_v19 : Ref sig .tc := ⟨.hbm, 462, rfl⟩
abbrev main_call20_c : Ref sig .tc := ⟨.hbm, 463, rfl⟩
abbrev main_call20_v0 : Ref sig .tc := ⟨.hbm, 464, rfl⟩
abbrev main_call20_v1 : Ref sig .tc := ⟨.hbm, 465, rfl⟩
abbrev main_call20_c_0 : Ref sig .tc := ⟨.hbm, 466, rfl⟩
abbrev main_call20_v2 : Ref sig .tc := ⟨.hbm, 467, rfl⟩
abbrev main_call20_v3 : Ref sig .tc := ⟨.hbm, 468, rfl⟩
abbrev main_call20_v4 : Ref sig .tc := ⟨.hbm, 469, rfl⟩
abbrev main_call20_v5 : Ref sig .tc := ⟨.hbm, 470, rfl⟩
abbrev main_call20_c_1 : Ref sig .tc := ⟨.hbm, 471, rfl⟩
abbrev main_call20_c_2 : Ref sig .tc := ⟨.hbm, 472, rfl⟩
abbrev main_call20_v6 : Ref sig .tc := ⟨.hbm, 473, rfl⟩
abbrev main_call20_v7 : Ref sig .tc := ⟨.hbm, 474, rfl⟩
abbrev main_call20_v8 : Ref sig .tc := ⟨.hbm, 475, rfl⟩
abbrev main_call20_v9 : Ref sig .tc := ⟨.hbm, 476, rfl⟩
abbrev main_call20_v10 : Ref sig .tc := ⟨.hbm, 477, rfl⟩
abbrev main_call20_c_3 : Ref sig .tc := ⟨.hbm, 478, rfl⟩
abbrev main_call20_v11 : Ref sig .tc := ⟨.hbm, 479, rfl⟩
abbrev main_call20_v12 : Ref sig .tc := ⟨.hbm, 480, rfl⟩
abbrev main_call20_v13 : Ref sig .tc := ⟨.hbm, 481, rfl⟩
abbrev main_call20_cst : Ref sig .tc := ⟨.hbm, 482, rfl⟩
abbrev main_call20_v14 : Ref sig .tc := ⟨.hbm, 483, rfl⟩
abbrev main_v20 : Ref sig .tc := ⟨.hbm, 484, rfl⟩
abbrev main_call21_c : Ref sig .tc := ⟨.hbm, 485, rfl⟩
abbrev main_call21_v0 : Ref sig .tc := ⟨.hbm, 486, rfl⟩
abbrev main_call21_v1 : Ref sig .tc := ⟨.hbm, 487, rfl⟩
abbrev main_call21_c_0 : Ref sig .tc := ⟨.hbm, 488, rfl⟩
abbrev main_call21_v2 : Ref sig .tc := ⟨.hbm, 489, rfl⟩
abbrev main_call21_v3 : Ref sig .tc := ⟨.hbm, 490, rfl⟩
abbrev main_call21_v4 : Ref sig .tc := ⟨.hbm, 491, rfl⟩
abbrev main_call21_v5 : Ref sig .tc := ⟨.hbm, 492, rfl⟩
abbrev main_call21_c_1 : Ref sig .tc := ⟨.hbm, 493, rfl⟩
abbrev main_call21_c_2 : Ref sig .tc := ⟨.hbm, 494, rfl⟩
abbrev main_call21_v6 : Ref sig .tc := ⟨.hbm, 495, rfl⟩
abbrev main_call21_v7 : Ref sig .tc := ⟨.hbm, 496, rfl⟩
abbrev main_call21_v8 : Ref sig .tc := ⟨.hbm, 497, rfl⟩
abbrev main_call21_v9 : Ref sig .tc := ⟨.hbm, 498, rfl⟩
abbrev main_call21_v10 : Ref sig .tc := ⟨.hbm, 499, rfl⟩
abbrev main_call21_c_3 : Ref sig .tc := ⟨.hbm, 500, rfl⟩
abbrev main_call21_v11 : Ref sig .tc := ⟨.hbm, 501, rfl⟩
abbrev main_call21_v12 : Ref sig .tc := ⟨.hbm, 502, rfl⟩
abbrev main_call21_v13 : Ref sig .tc := ⟨.hbm, 503, rfl⟩
abbrev main_call21_cst : Ref sig .tc := ⟨.hbm, 504, rfl⟩
abbrev main_call21_v14 : Ref sig .tc := ⟨.hbm, 505, rfl⟩
abbrev main_v21 : Ref sig .tc := ⟨.hbm, 506, rfl⟩

abbrev nD : Nat := 1
abbrev τ : Topo := Topo.v7x

variable {F : FTy → Type} [FloatOps F]

class Facts₀ : Prop where
  bcast_S_S1 : S_.BroadcastsInDim S1 (![] : Fin 0 → Fin S1.rank)
  bcast_S1_S1x1_0 : S1.BroadcastsInDim S1x1 (![0] : Fin 1 → Fin S1x1.rank)
  bcast_S_S1x1 : S_.BroadcastsInDim S1x1 (![] : Fin 0 → Fin S1x1.rank)
  bcast_S1_S1x1_1 : S1.BroadcastsInDim S1x1 (![1] : Fin 1 → Fin S1x1.rank)
  reducesTo_S1x1_S1_d1 : S1x1.ReducesTo [1] S1
  h_S_ : 0 < S_.numel
  bcast_S1_S1600000x1_1 : S1.BroadcastsInDim S1600000x1 (![1] : Fin 1 → Fin S1600000x1.rank)
  bcast_S_S1600000x1 : S_.BroadcastsInDim S1600000x1 (![] : Fin 0 → Fin S1600000x1.rank)
  gather_S1600000x22_S1x1_S1600000x1_0_1_n_n_1_1_16000001_wf : GatherDims.WF S1600000x22 S1x1 S1600000x1 [0] [1] [] [1] [] 1 ![1600000, 1]

variable [Facts₀]

def gather_S1600000x22_S1x1_S1600000x1_0_1_n_n_1_1_16000001 : GatherDims S1600000x22 S1x1 S1600000x1 where
  offsetDims := [0]
  collapsedSliceDims := [1]
  operandBatchingDims := []
  startIndicesBatchingDims := []
  startIndexMap := [1]
  indexVectorDim := 1
  sliceSizes := ![1600000, 1]
  wf := gather_S1600000x22_S1x1_S1600000x1_0_1_n_n_1_1_16000001_wf

class Facts : Prop extends Facts₀ where

variable [Facts]
-- ==== Proof.Spec.lean ====
/-
  The function every result of both programs is: column `j` of the 1600000 × 22 argument array, as a
  1600000 × 1 array. Entry (i, 0) of result `j` is entry (i, j) of the argument. No arithmetic happens on either
  side: the kernel transposes the argument and copies row `j` of the transpose out in pieces of 3200 elements,
  the reference gathers column `j`; both are this index map, at every float instance.
-/
import Idealize.ShloMosaic.PureOps.Ideal
import Idealize.ShloMosaic.Lib.ValueIdx

noncomputable section

namespace Cert.Spec

open Idealize.ShloMosaic Idealize.ShloMosaic.ValueIdx

/-- Column `j` of a 1600000 × 22 array, as a 1600000 × 1 array. -/
def col {α : Type} (j : Fin 22) (x : (⟨2, ![1600000, 22]⟩ : Shape).Idx → α) :
    (⟨2, ![1600000, 1]⟩ : Shape).Idx → α :=
  fun y => x (ix2 (n0 := 1600000) (n1 := 22) (y 0) j)

theorem col_apply {α : Type} (j : Fin 22) (x : (⟨2, ![1600000, 22]⟩ : Shape).Idx → α)
    (y : (⟨2, ![1600000, 1]⟩ : Shape).Idx) : col j x y = x (ix2 (n0 := 1600000) (n1 := 22) (y 0) j) := rfl

/-- Row `j` of the transposed (22 × 1600000) array, as a flat array of 1600000 elements: what kernel `j` copies out. -/
def row {α : Type} (j : Fin 22) (xt : (⟨2, ![22, 1600000]⟩ : Shape).Idx → α) :
    (⟨1, ![1600000]⟩ : Shape).Idx → α :=
  fun y => xt (ix2 (n0 := 22) (n1 := 1600000) j (y 0))

theorem row_apply {α : Type} (j : Fin 22) (xt : (⟨2, ![22, 1600000]⟩ : Shape).Idx → α)
    (y : (⟨1, ![1600000]⟩ : Shape).Idx) : row j xt y = xt (ix2 (n0 := 22) (n1 := 1600000) j (y 0)) := rfl

end Cert.Spec

end
-- ==== Proof.RefRunA.lean ====
/-
  One call of the reference's column-taking function: its operations as a list over the call's buffers, the
  program equation of a call, what the operations touch and write, and the function of the contents a call
  computes — column `j` of the operand when the index array holds the word `j`, `0 ≤ j < 22`.
-/
import proofs.«206869_g37898791420194_cont_8to1_b_558_20_alg».proof.Proof.Gen.ReferenceIdeal
import proofs.«206869_g37898791420194_cont_8to1_b_558_20_alg».proof.Proof.Spec
import Idealize.ShloMosaic.Lib.StableHlo.Run
import Idealize.ShloMosaic.Lib.ValueIdx

noncomputable section

namespace Cert.ReferenceIdeal.RefValue

open Cert.ReferenceIdeal Cert.ReferenceIdeal.Gen Idealize.ShloMosaic Idealize.ShloMosaic.TcCoe Idealize.SL.Sem Idealize.ShloMosaic.StableHlo Idealize.ShloMosaic.ValueIdx

variable {F : FTy → Type} [FloatOps F]

/-- The operations of one call of the column-taking function, in order, over the call's operand buffers
    `a` (the 1600000 × 22 array) and `b` (the one-entry index array) and the call's own buffers `φ`:
    the index normalised (`j < 0 ? j + 22 : j`), its copy as a 1 × 1 array, the in-bounds mask
    (`0 ≤ j` and `j ≤ 21`, reduced by `and`), the gather of the column, the mask broadcast over the
    result, a NaN array, and the select of the gather where the mask holds. -/
def takeOps (a : TRef sig ⟨S1600000x22, .f32⟩) (b : TRef sig ⟨S1, .i32⟩) (φ : fn_take.Bufs) : List (HloOp τ sig (Elt F)) :=
  [ TRef.nullary φ.c (constantI S_ 32 0#32),
    TRef.unary φ.c φ.v0 (broadcastInDim S1 ![] bcast_S_S1),
    TRef.binary b φ.v0 φ.v1 (cmpi .slt),
    TRef.nullary φ.c_0 (constantI S_ 32 22#32),
    TRef.unary φ.c_0 φ.v2 (broadcastInDim S1 ![] bcast_S_S1),
    TRef.binary b φ.v2 φ.v3 addi,
    TRef.ternary φ.v1 φ.v3 b φ.call0.v0 select,
    TRef.unary φ.call0.v0 φ.v5 (broadcastInDim S1x1 ![0] bcast_S1_S1x1_0),
    TRef.nullary φ.c_1 (constantI S1 32 21#32),
    TRef.nullary φ.c_2 (constantI S_ 32 0#32),
    TRef.unary φ.c_2 φ.v6 (broadcastInDim S1x1 ![] bcast_S_S1x1),
    TRef.binary φ.v5 φ.v6 φ.v7 (cmpi .sge),
    TRef.unary φ.c_1 φ.v8 (broadcastInDim S1x1 ![1] bcast_S1_S1x1_1),
    TRef.binary φ.v5 φ.v8 φ.v9 (cmpi .sle),
    TRef.binary φ.v7 φ.v9 φ.v10 andi,
    TRef.nullary φ.c_3 (constantI S_ 1 1#1),
    TRef.binary φ.v10 φ.c_3 φ.v11 (fun x v => Host.reduce IntOp.andi x v reducesTo_S1x1_S1_d1 h_S_),
    TRef.binary a φ.v5 φ.v12 (fun x i => Host.gather gather_S1600000x22_S1x1_S1600000x1_0_1_n_n_1_1_16000001 x i),
    TRef.unary φ.v11 φ.v13 (broadcastInDim S1600000x1 ![1] bcast_S1_S1600000x1_1),
    TRef.nullary φ.cst (constant S_ .f32 0x7FC00000#32),
    TRef.unary φ.cst φ.v14 (broadcastInDim S1600000x1 ![] bcast_S_S1600000x1),
    TRef.ternary φ.v13 φ.v12 φ.v14 φ.v15 select ]

/-! ## What one call computes, as a function of the contents -/

/-- The index normalised as `jnp.take` does: `j + 22` where `j < 0`, else `j`. -/
def normIdx (i : IVec S1 32) : IVec S1 32 :=
  select (cmpi .slt i (broadcastInDim S1 ![] bcast_S_S1 (constantI S_ 32 0#32)))
    (addi i (broadcastInDim S1 ![] bcast_S_S1 (constantI S_ 32 22#32))) i

/-- The normalised index as the 1 × 1 array of start indices the gather reads. -/
def startIdx (i : IVec S1 32) : IVec S1x1 32 := broadcastInDim S1x1 ![0] bcast_S1_S1x1_0 (normIdx i)

/-- The in-bounds mask: `0 ≤ j` and `j ≤ 21` at the one start index, reduced by `and` from `true`. -/
def inBounds (i : IVec S1 32) : IVec S1 1 :=
  Host.reduce IntOp.andi
    (andi (cmpi .sge (startIdx i) (broadcastInDim S1x1 ![] bcast_S_S1x1 (constantI S_ 32 0#32)))
      (cmpi .sle (startIdx i) (broadcastInDim S1x1 ![1] bcast_S1_S1x1_1 (constantI S1 32 21#32))))
    (constantI S_ 1 1#1) reducesTo_S1x1_S1_d1 h_S_

/-- One call's result: the gathered column where the mask holds, NaN elsewhere. -/
def takeVal (x : S1600000x22.Idx → F .f32) (i : IVec S1 32) : S1600000x1.Idx → F .f32 :=
  select (broadcastInDim S1600000x1 ![1] bcast_S1_S1600000x1_1 (inBounds i))
    (Host.gather gather_S1600000x22_S1x1_S1600000x1_0_1_n_n_1_1_16000001 x (startIdx i))
    (broadcastInDim S1600000x1 ![] bcast_S_S1600000x1 (constant S_ .f32 0x7FC00000#32))

/-- For an index word `j` with `0 ≤ j < 22` the normalisation changes nothing. -/
theorem normIdx_const (j : Fin 22) (k : S1.Idx) : normIdx (constantI S1 32 (BitVec.ofNat 32 j)) k = BitVec.ofNat 32 j := by
  show Scalar.select (IntOp.cmpi .slt (BitVec.ofNat 32 j) 0#32) (IntOp.addi (BitVec.ofNat 32 j) 22#32) (BitVec.ofNat 32 j) = _
  revert j; decide

theorem startIdx_const (j : Fin 22) (k : S1x1.Idx) : startIdx (constantI S1 32 (BitVec.ofNat 32 j)) k = BitVec.ofNat 32 j :=
  normIdx_const j _

/-- A reduction by `and` from `true` of an array that is `true` everywhere is `true`. -/
theorem reduce_and_true {s t u : Shape} {axes : List (Fin s.rank)} (x : IVec s 1) (init : IVec u 1) (h : s.ReducesTo axes t)
    (hu : 0 < u.numel) (hx : ∀ i, x i = 1#1) (hi : ∀ i, init i = 1#1) (j : t.Idx) :
    Host.reduce IntOp.andi x init h hu j = 1#1 := by
  unfold Host.reduce
  rw [hi]
  generalize ((List.finRange s.numel).filter fun n => h.drop (s.rowMajor.symm n) = j) = l
  induction l with
  | nil => rfl
  | cons n l ih =>
    rw [List.foldl_cons, hx]
    exact ih

/-- For an index word `j` with `0 ≤ j < 22` the mask is `true`. -/
theorem inBounds_const (j : Fin 22) (k : S1.Idx) : inBounds (constantI S1 32 (BitVec.ofNat 32 j)) k = 1#1 := by
  unfold inBounds
  refine reduce_and_true _ _ _ _ (fun i => ?_) (fun _ => rfl) k
  show IntOp.andi (IntOp.cmpi .sge (startIdx (constantI S1 32 (BitVec.ofNat 32 j)) i) 0#32)
    (IntOp.cmpi .sle (startIdx (constantI S1 32 (BitVec.ofNat 32 j)) i) 21#32) = 1#1
  rw [startIdx_const]
  revert j; decide

/-- An index word `j`, `0 ≤ j < 22`, read as a signed integer and clamped into `[0, 21]` is `j`. -/
theorem clamp_const : ∀ j : Fin 22, min (BitVec.ofNat 32 j).toInt.toNat (22 - 1) = (j : Nat) := by decide

/-- The gather read at `(i, 0)`: the start indices hold the one word `j` (`0 ≤ j < 22`), so on the
    operand's axis 1 — the collapsed axis the start index map names — the coordinate is `j` read signed
    and clamped into `[0, 21]`, which is `j`; on axis 0, the offset axis, it is the result's coordinate `i`. -/
theorem gather_col (x : S1600000x22.Idx → F .f32) (idx : IVec S1x1 32) (j : Fin 22)
    (h : ∀ k, idx k = BitVec.ofNat 32 j) (y : S1600000x1.Idx) :
    Host.gather gather_S1600000x22_S1x1_S1600000x1_0_1_n_n_1_1_16000001 x idx y
      = x (ix2 (n0 := 1600000) (n1 := 22) (y 0) j) := by
  unfold Host.gather
  refine congrArg x ?_
  funext a
  refine Fin.ext ?_
  show gather_S1600000x22_S1x1_S1600000x1_0_1_n_n_1_1_16000001.start y idx a
      + gather_S1600000x22_S1x1_S1600000x1_0_1_n_n_1_1_16000001.batchCoord y a
      + gather_S1600000x22_S1x1_S1600000x1_0_1_n_n_1_1_16000001.offCoord y a = _
  rw [GatherDims.batchCoord_eq_zero _ _ _ List.not_mem_nil, Nat.add_zero]
  have ha : a = (0 : Fin S1600000x22.rank) ∨ a = (1 : Fin S1600000x22.rank) := by
    rcases a with ⟨v, hv⟩
    have hv2 : v < 2 := hv
    rcases (by omega : v = 0 ∨ v = 1) with rfl | rfl
    · exact Or.inl rfl
    · exact Or.inr rfl
  rcases ha with rfl | rfl
  · unfold GatherDims.start
    split
    · rename_i h0; exact absurd h0 (by decide)
    · rw [Nat.zero_add]
      unfold GatherDims.offCoord
      split
      · rfl
      · rename_i h0; exact absurd h0 (by decide)
  · rw [GatherDims.offCoord_eq_zero _ _ _ (by decide), Nat.add_zero]
    unfold GatherDims.start
    split
    · rw [h]; exact clamp_const j
    · rename_i h1; exact absurd (by decide) h1

/-- One call's result for the index word `j`, `0 ≤ j < 22`: column `j` of the operand. The mask is
    `true`, so the select takes the gather at every index, and the gather at `(i, 0)` is the operand at `(i, j)`. -/
theorem takeVal_const (j : Fin 22) (x : S1600000x22.Idx → F .f32) :
    takeVal x (constantI S1 32 (BitVec.ofNat 32 j)) = Cert.Spec.col j x := by
  funext y
  show Scalar.select (inBounds (constantI S1 32 (BitVec.ofNat 32 j)) _)
    (Host.gather gather_S1600000x22_S1x1_S1600000x1_0_1_n_n_1_1_16000001 x (startIdx (constantI S1 32 (BitVec.ofNat 32 j))) y) _ = _
  rw [inBounds_const, select_one, gather_col x _ j (startIdx_const j) y]
  rfl

/-! ## One call, as a line of operations -/

/-- A call is its operations run in order: the callee's body, and the body of the function it calls,
    unfolded at the call's buffers. -/
theorem take_eq (a : TRef sig ⟨S1600000x22, .f32⟩) (b : TRef sig ⟨S1, .i32⟩) (φ : fn_take.Bufs) :
    fn_take.body (F := F) a b φ = seq (takeOps a b φ) := by
  simp only [fn_take.body, fn_where.body, takeOps, seq, bind_assoc, pure_bind]

/-- Every operation of a call touches TensorCore buffers only. -/
theorem takeOps_sub (a : TRef sig ⟨S1600000x22, .f32⟩) (b : TRef sig ⟨S1, .i32⟩) (φ : fn_take.Bufs) :
    ∀ op ∈ takeOps (F := F) a b φ, op.bufs ⊆ tcRefs τ sig :=
  List.forall_iff_forall_mem.mp
    ⟨nullary_bufs_sub .., unary_bufs_sub .., binary_bufs_sub .., nullary_bufs_sub .., unary_bufs_sub .., binary_bufs_sub ..,
      ternary_bufs_sub .., unary_bufs_sub .., nullary_bufs_sub .., nullary_bufs_sub .., unary_bufs_sub .., binary_bufs_sub ..,
      unary_bufs_sub .., binary_bufs_sub .., binary_bufs_sub .., nullary_bufs_sub .., binary_bufs_sub .., binary_bufs_sub ..,
      unary_bufs_sub .., nullary_bufs_sub .., unary_bufs_sub .., ternary_bufs_sub ..⟩

/-- Every operation of a call determines what it writes. -/
theorem takeOps_fresh (a : TRef sig ⟨S1600000x22, .f32⟩) (b : TRef sig ⟨S1, .i32⟩) (φ : fn_take.Bufs) :
    ∀ op ∈ takeOps (F := F) a b φ, op.fresh = ∅ :=
  List.forall_iff_forall_mem.mp
    ⟨rfl, rfl, rfl, rfl, rfl, rfl, rfl, rfl, rfl, rfl, rfl, rfl, rfl, rfl, rfl, rfl, rfl, rfl, rfl, rfl, rfl, rfl⟩

/-- The buffers a call writes: the call's own, one per operation. -/
def takeRefs (φ : fn_take.Bufs) : List (Ref sig .tc) :=
  [φ.c.ref, φ.v0.ref, φ.v1.ref, φ.c_0.ref, φ.v2.ref, φ.v3.ref, φ.call0.v0.ref, φ.v5.ref, φ.c_1.ref, φ.c_2.ref, φ.v6.ref,
    φ.v7.ref, φ.v8.ref, φ.v9.ref, φ.v10.ref, φ.c_3.ref, φ.v11.ref, φ.v12.ref, φ.v13.ref, φ.cst.ref, φ.v14.ref, φ.v15.ref]

theorem single_sub {W : List (Ref sig .tc)} {y : Ref sig .tc} (h : y ∈ W) :
    ({Proc.devRef (τ := τ) .tc y} : Finset (DevRef τ sig)) ⊆ (W.map (Proc.devRef (τ := τ) .tc)).toFinset :=
  Finset.singleton_subset_iff.mpr (List.mem_toFinset.mpr (List.mem_map.mpr ⟨y, h, rfl⟩))

theorem takeOps_writes (a : TRef sig ⟨S1600000x22, .f32⟩) (b : TRef sig ⟨S1, .i32⟩) (φ : fn_take.Bufs) :
    (takeOps (F := F) a b φ).Forall fun op => op.writes ⊆ ((takeRefs φ).map (Proc.devRef (τ := τ) .tc)).toFinset :=
  ⟨single_sub (by simp [takeRefs]), single_sub (by simp [takeRefs]), single_sub (by simp [takeRefs]), single_sub (by simp [takeRefs]),
    single_sub (by simp [takeRefs]), single_sub (by simp [takeRefs]), single_sub (by simp [takeRefs]), single_sub (by simp [takeRefs]),
    single_sub (by simp [takeRefs]), single_sub (by simp [takeRefs]), single_sub (by simp [takeRefs]), single_sub (by simp [takeRefs]),
    single_sub (by simp [takeRefs]), single_sub (by simp [takeRefs]), single_sub (by simp [takeRefs]), single_sub (by simp [takeRefs]),
    single_sub (by simp [takeRefs]), single_sub (by simp [takeRefs]), single_sub (by simp [takeRefs]), single_sub (by simp [takeRefs]),
    single_sub (by simp [takeRefs]), single_sub (by simp [takeRefs])⟩

/-- A buffer that is not one of the call's own holds after the call what it held before. -/
theorem take_frame (a : TRef sig ⟨S1600000x22, .f32⟩) (b : TRef sig ⟨S1, .i32⟩) (φ : fn_take.Bufs)
    (V : Valuation τ sig (Elt F)) {r : Ref sig .tc} (hr : r ∉ takeRefs φ) :
    after (takeOps a b φ) V (Proc.devRef .tc r) = V (Proc.devRef .tc r) :=
  after_of_writes_sub _ V (takeOps_writes a b φ) hr

/-- Two lines run one after the other: the second from what the first leaves. -/
theorem after_append (l₁ l₂ : List (HloOp τ sig (Elt F))) (V : Valuation τ sig (Elt F)) :
    after (l₁ ++ l₂) V = after l₂ (after l₁ V) := by
  induction l₁ generalizing V with
  | nil => rfl
  | cons op l ih => exact ih _

end Cert.ReferenceIdeal.RefValue

end
-- ==== Proof.RefRunB.lean ====
/-
  The calls of @main, one by one (part 1): call `J` leaves its result buffer at the function of the contents
  one call computes, of the operand's contents and the contents of the call's index array before the call.
  The fold over the call's 22 operations is read off operation by operation: each result buffer at its
  operation's function of its operands' contents, every other buffer as it was.
-/
import proofs.«206869_g37898791420194_cont_8to1_b_558_20_alg».proof.Proof.RefRunA

noncomputable section

namespace Cert.ReferenceIdeal.RefValue

open Cert.ReferenceIdeal Cert.ReferenceIdeal.Gen Idealize.ShloMosaic Idealize.ShloMosaic.TcCoe Idealize.SL.Sem Idealize.ShloMosaic.StableHlo Idealize.ShloMosaic.ValueIdx

variable {F : FTy → Type} [FloatOps F]

set_option maxRecDepth 8192 in
set_option maxHeartbeats 1000000 in
theorem call0 (V : Valuation τ sig (Elt F)) :
    after (takeOps (.of main_arg0) (.of main_c) main_call0) V (main_v0 : DevRef τ sig)
      = takeVal (V (main_arg0 : DevRef τ sig)) (V (main_c : DevRef τ sig)) := by
  unfold takeOps
  after_results_simp
  rfl

set_option maxRecDepth 8192 in
set_option maxHeartbeats 1000000 in
theorem call1 (V : Valuation τ sig (Elt F)) :
    after (takeOps (.of main_arg0) (.of main_c_0) main_call1) V (main_v1 : DevRef τ sig)
      = takeVal (V (main_arg0 : DevRef τ sig)) (V (main_c_0 : DevRef τ sig)) := by
  unfold takeOps
  after_results_simp
  rfl

set_option maxRecDepth 8192 in
set_option maxHeartbeats 1000000 in
theorem call2 (V : Valuation τ sig (Elt F)) :
    after (takeOps (.of main_arg0) (.of main_c_1) main_call2) V (main_v2 : DevRef τ sig)
      = takeVal (V (main_arg0 : DevRef τ sig)) (V (main_c_1 : DevRef τ sig)) := by
  unfold takeOps
  after_results_simp
  rfl

set_option maxRecDepth 8192 in
set_option maxHeartbeats 1000000 in
theorem call3 (V : Valuation τ sig (Elt F)) :
    after (takeOps (.of main_arg0) (.of main_c_2) main_call3) V (main_v3 : DevRef τ sig)
      = takeVal (V (main_arg0 : DevRef τ sig)) (V (main_c_2 : DevRef τ sig)) := by
  unfold takeOps
  after_results_simp
  rfl

set_option maxRecDepth 8192 in
set_option maxHeartbeats 1000000 in
theorem call4 (V : Valuation τ sig (Elt F)) :
    after (takeOps (.of main_arg0) (.of main_c_3) main_call4) V (main_v4 : DevRef τ sig)
      = takeVal (V (main_arg0 : DevRef τ sig)) (V (main_c_3 : DevRef τ sig)) := by
  unfold takeOps
  after_results_simp
  rfl

set_option maxRecDepth 8192 in
set_option maxHeartbeats 1000000 in
theorem call5 (V : Valuation τ sig (Elt F)) :
    after (takeOps (.of main_arg0) (.of main_c_4) main_call5) V (main_v5 : DevRef τ sig)
      = takeVal (V (main_arg0 : DevRef τ sig)) (V (main_c_4 : DevRef τ sig)) := by
  unfold takeOps
  after_results_simp
  rfl

set_option maxRecDepth 8192 in
set_option maxHeartbeats 1000000 in
theorem call6 (V : Valuation τ sig (Elt F)) :
    after (takeOps (.of main_arg0) (.of main_c_5) main_call6) V (main_v6 : DevRef τ sig)
      = takeVal (V (main_arg0 : DevRef τ sig)) (V (main_c_5 : DevRef τ sig)) := by
  unfold takeOps
  after_results_simp
  rfl

set_option maxRecDepth 8192 in
set_option maxHeartbeats 1000000 in
theorem call7 (V : Valuation τ sig (Elt F)) :
    after (takeOps (.of main_arg0) (.of main_c_6) main_call7) V (main_v7 : DevRef τ sig)
      = takeVal (V (main_arg0 : DevRef τ sig)) (V (main_c_6 : DevRef τ sig)) := by
  unfold takeOps
  after_results_simp
  rfl

set_option maxRecDepth 8192 in
set_option maxHeartbeats 1000000 in
theorem call8 (V : Valuation τ sig (Elt F)) :
    after (takeOps (.of main_arg0) (.of main_c_7) main_call8) V (main_v8 : DevRef τ sig)
      = takeVal (V (main_arg0 : DevRef τ sig)) (V (main_c_7 : DevRef τ sig)) := by
  unfold takeOps
  after_results_simp
  rfl

set_option maxRecDepth 8192 in
set_option maxHeartbeats 1000000 in
theorem call9 (V : Valuation τ sig (Elt F)) :
    after (takeOps (.of main_arg0) (.of main_c_8) main_call9) V (main_v9 : DevRef τ sig)
      = takeVal (V (main_arg0 : DevRef τ sig)) (V (main_c_8 : DevRef τ sig)) := by
  unfold takeOps
  after_results_simp
  rfl

set_option maxRecDepth 8192 in
set_option maxHeartbeats 1000000 in
theorem call10 (V : Valuation τ sig (Elt F)) :
    after (takeOps (.of main_arg0) (.of main_c_9) main_call10) V (main_v10 : DevRef τ sig)
      = takeVal (V (main_arg0 : DevRef τ sig)) (V (main_c_9 : DevRef τ sig)) := by
  unfold takeOps
  after_results_simp
  rfl

end Cert.ReferenceIdeal.RefValue

end
-- ==== Proof.RefRunC.lean ====
/-
  The calls of @main, one by one (part 2): call `J` leaves its result buffer at the function of the contents
  one call computes, of the operand's contents and the contents of the call's index array before the call.
  The fold over the call's 22 operations is read off operation by operation: each result buffer at its
  operation's function of its operands' contents, every other buffer as it was.
-/
import proofs.«206869_g37898791420194_cont_8to1_b_558_20_alg».proof.Proof.RefRunA

noncomputable section

namespace Cert.ReferenceIdeal.RefValue

open Cert.ReferenceIdeal Cert.ReferenceIdeal.Gen Idealize.ShloMosaic Idealize.ShloMosaic.TcCoe Idealize.SL.Sem Idealize.ShloMosaic.StableHlo Idealize.ShloMosaic.ValueIdx

variable {F : FTy → Type} [FloatOps F]

set_option maxRecDepth 8192 in
set_option maxHeartbeats 1000000 in
theorem call11 (V : Valuation τ sig (Elt F)) :
    after (takeOps (.of main_arg0) (.of main_c_10) main_call11) V (main_v11 : DevRef τ sig)
      = takeVal (V (main_arg0 : DevRef τ sig)) (V (main_c_10 : DevRef τ sig)) := by
  unfold takeOps
  after_results_simp
  rfl

set_option maxRecDepth 8192 in
set_option maxHeartbeats 1000000 in
theorem call12 (V : Valuation τ sig (Elt F)) :
    after (takeOps (.of main_arg0) (.of main_c_11) main_call12) V (main_v12 : DevRef τ sig)
      = takeVal (V (main_arg0 : DevRef τ sig)) (V (main_c_11 : DevRef τ sig)) := by
  unfold takeOps
  after_results_simp
  rfl

set_option maxRecDepth 8192 in
set_option maxHeartbeats 1000000 in
theorem call13 (V : Valuation τ sig (Elt F)) :
    after (takeOps (.of main_arg0) (.of main_c_12) main_call13) V (main_v13 : DevRef τ sig)
      = takeVal (V (main_arg0 : DevRef τ sig)) (V (main_c_12 : DevRef τ sig)) := by
  unfold takeOps
  after_results_simp
  rfl

set_option maxRecDepth 8192 in
set_option maxHeartbeats 1000000 in
theorem call14 (V : Valuation τ sig (Elt F)) :
    after (takeOps (.of main_arg0) (.of main_c_13) main_call14) V (main_v14 : DevRef τ sig)
      = takeVal (V (main_arg0 : DevRef τ sig)) (V (main_c_13 : DevRef τ sig)) := by
  unfold takeOps
  after_results_simp
  rfl

set_option maxRecDepth 8192 in
set_option maxHeartbeats 1000000 in
theorem call15 (V : Valuation τ sig (Elt F)) :
    after (takeOps (.of main_arg0) (.of main_c_14) main_call15) V (main_v15 : DevRef τ sig)
      = takeVal (V (main_arg0 : DevRef τ sig)) (V (main_c_14 : DevRef τ sig)) := by
  unfold takeOps
  after_results_simp
  rfl

set_option maxRecDepth 8192 in
set_option maxHeartbeats 1000000 in
theorem call16 (V : Valuation τ sig (Elt F)) :
    after (takeOps (.of main_arg0) (.of main_c_15) main_call16) V (main_v16 : DevRef τ sig)
      = takeVal (V (main_arg0 : DevRef τ sig)) (V (main_c_15 : DevRef τ sig)) := by
  unfold takeOps
  after_results_simp
  rfl

set_option maxRecDepth 8192 in
set_option maxHeartbeats 1000000 in
theorem call17 (V : Valuation τ sig (Elt F)) :
    after (takeOps (.of main_arg0) (.of main_c_16) main_call17) V (main_v17 : DevRef τ sig)
      = takeVal (V (main_arg0 : DevRef τ sig)) (V (main_c_16 : DevRef τ sig)) := by
  unfold takeOps
  after_results_simp
  rfl

set_option maxRecDepth 8192 in
set_option maxHeartbeats 1000000 in
theorem call18 (V : Valuation τ sig (Elt F)) :
    after (takeOps (.of main_arg0) (.of main_c_17) main_call18) V (main_v18 : DevRef τ sig)
      = takeVal (V (main_arg0 : DevRef τ sig)) (V (main_c_17 : DevRef τ sig)) := by
  unfold takeOps
  after_results_simp
  rfl

set_option maxRecDepth 8192 in
set_option maxHeartbeats 1000000 in
theorem call19 (V : Valuation τ sig (Elt F)) :
    after (takeOps (.of main_arg0) (.of main_c_18) main_call19) V (main_v19 : DevRef τ sig)
      = takeVal (V (main_arg0 : DevRef τ sig)) (V (main_c_18 : DevRef τ sig)) := by
  unfold takeOps
  after_results_simp
  rfl

set_option maxRecDepth 8192 in
set_option maxHeartbeats 1000000 in
theorem call20 (V : Valuation τ sig (Elt F)) :
    after (takeOps (.of main_arg0) (.of main_c_19) main_call20) V (main_v20 : DevRef τ sig)
      = takeVal (V (main_arg0 : DevRef τ sig)) (V (main_c_19 : DevRef τ sig)) := by
  unfold takeOps
  after_results_simp
  rfl

set_option maxRecDepth 8192 in
set_option maxHeartbeats 1000000 in
theorem call21 (V : Valuation τ sig (Elt F)) :
    after (takeOps (.of main_arg0) (.of main_c_20) main_call21) V (main_v21 : DevRef τ sig)
      = takeVal (V (main_arg0 : DevRef τ sig)) (V (main_c_20 : DevRef τ sig)) := by
  unfold takeOps
  after_results_simp
  rfl

end Cert.ReferenceIdeal.RefValue

end
-- ==== Proof.RefRun.lean ====
/-
  The run of the reference program, read back: @main is 22 index constants followed by 22 calls of the
  column-taking function, call `J` on the argument array and the constant `J`. As a line of operations it is the
  constants followed by each call's 22 operations over that call's own buffers; every weakly fair execution
  terminates, and result `J` ends at column `J` of the argument's launch contents, the argument unchanged.
-/
import proofs.«206869_g37898791420194_cont_8to1_b_558_20_alg».proof.Proof.RefRunA
import proofs.«206869_g37898791420194_cont_8to1_b_558_20_alg».proof.Proof.RefRunB
import proofs.«206869_g37898791420194_cont_8to1_b_558_20_alg».proof.Proof.RefRunC

noncomputable section

namespace Cert.ReferenceIdeal.RefValue

open Cert.ReferenceIdeal Cert.ReferenceIdeal.Gen Idealize.ShloMosaic Idealize.ShloMosaic.TcCoe Idealize.SL.Sem Idealize.ShloMosaic.StableHlo Idealize.ShloMosaic.ValueIdx

variable {F : FTy → Type} [FloatOps F]

/-! ## @main as a line of operations -/

/-- The 22 index constants @main defines before the calls: the one-entry arrays `0`, …, `21`; the array
    `j` is the index argument of call `j`. -/
def consts : List (HloOp τ sig (Elt F)) :=
  [ nullary main_c (constantI S1 32 0#32),
    nullary main_c_0 (constantI S1 32 1#32),
    nullary main_c_1 (constantI S1 32 2#32),
    nullary main_c_2 (constantI S1 32 3#32),
    nullary main_c_3 (constantI S1 32 4#32),
    nullary main_c_4 (constantI S1 32 5#32),
    nullary main_c_5 (constantI S1 32 6#32),
    nullary main_c_6 (constantI S1 32 7#32),
    nullary main_c_7 (constantI S1 32 8#32),
    nullary main_c_8 (constantI S1 32 9#32),
    nullary main_c_9 (constantI S1 32 10#32),
    nullary main_c_10 (constantI S1 32 11#32),
    nullary main_c_11 (constantI S1 32 12#32),
    nullary main_c_12 (constantI S1 32 13#32),
    nullary main_c_13 (constantI S1 32 14#32),
    nullary main_c_14 (constantI S1 32 15#32),
    nullary main_c_15 (constantI S1 32 16#32),
    nullary main_c_16 (constantI S1 32 17#32),
    nullary main_c_17 (constantI S1 32 18#32),
    nullary main_c_18 (constantI S1 32 19#32),
    nullary main_c_19 (constantI S1 32 20#32),
    nullary main_c_20 (constantI S1 32 21#32) ]

/-- @main's operations in order: the constants, then the 22 calls, each the 22 operations of one call over
    that call's buffers. -/
def ops : List (HloOp τ sig (Elt F)) :=
  consts ++
    (takeOps (.of main_arg0) (.of main_c) main_call0 ++
    (takeOps (.of main_arg0) (.of main_c_0) main_call1 ++
    (takeOps (.of main_arg0) (.of main_c_1) main_call2 ++
    (takeOps (.of main_arg0) (.of main_c_2) main_call3 ++
    (takeOps (.of main_arg0) (.of main_c_3) main_call4 ++
    (takeOps (.of main_arg0) (.of main_c_4) main_call5 ++
    (takeOps (.of main_arg0) (.of main_c_5) main_call6 ++
    (takeOps (.of main_arg0) (.of main_c_6) main_call7 ++
    (takeOps (.of main_arg0) (.of main_c_7) main_call8 ++
    (takeOps (.of main_arg0) (.of main_c_8) main_call9 ++
    (takeOps (.of main_arg0) (.of main_c_9) main_call10 ++
    (takeOps (.of main_arg0) (.of main_c_10) main_call11 ++
    (takeOps (.of main_arg0) (.of main_c_11) main_call12 ++
    (takeOps (.of main_arg0) (.of main_c_12) main_call13 ++
    (takeOps (.of main_arg0) (.of main_c_13) main_call14 ++
    (takeOps (.of main_arg0) (.of main_c_14) main_call15 ++
    (takeOps (.of main_arg0) (.of main_c_15) main_call16 ++
    (takeOps (.of main_arg0) (.of main_c_16) main_call17 ++
    (takeOps (.of main_arg0) (.of main_c_17) main_call18 ++
    (takeOps (.of main_arg0) (.of main_c_18) main_call19 ++
    (takeOps (.of main_arg0) (.of main_c_19) main_call20 ++
    (takeOps (.of main_arg0) (.of main_c_20) main_call21 ++
    []))))))))))))))))))))))

set_option maxRecDepth 16384 in
/-- @main is that line: each call is its operations run in order (`take_eq`), a concatenation runs its
    parts one after the other (`seq_append`), and sequencing reassociates. -/
theorem main_eq (c : Dev nD) : main (F := F) c = seq ops := by
  simp only [ops, seq_append]
  simp only [← take_eq]
  simp only [main, consts, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

/-! ## What the line touches -/

theorem forall_append {P : HloOp τ sig (Elt F) → Prop} {l₁ l₂ : List (HloOp τ sig (Elt F))}
    (h₁ : ∀ op ∈ l₁, P op) (h₂ : ∀ op ∈ l₂, P op) : ∀ op ∈ l₁ ++ l₂, P op :=
  fun op h => (List.mem_append.mp h).elim (h₁ op) (h₂ op)

theorem consts_sub : ∀ op ∈ consts (F := F), op.bufs ⊆ tcRefs τ sig :=
  List.forall_iff_forall_mem.mp
    ⟨nullary_bufs_sub .., nullary_bufs_sub .., nullary_bufs_sub .., nullary_bufs_sub .., nullary_bufs_sub .., nullary_bufs_sub .., nullary_bufs_sub .., nullary_bufs_sub .., nullary_bufs_sub .., nullary_bufs_sub .., nullary_bufs_sub .., nullary_bufs_sub .., nullary_bufs_sub .., nullary_bufs_sub .., nullary_bufs_sub .., nullary_bufs_sub .., nullary_bufs_sub .., nullary_bufs_sub .., nullary_bufs_sub .., nullary_bufs_sub .., nullary_bufs_sub .., nullary_bufs_sub ..⟩

theorem consts_fresh : ∀ op ∈ consts (F := F), op.fresh = ∅ :=
  List.forall_iff_forall_mem.mp ⟨rfl, rfl, rfl, rfl, rfl, rfl, rfl, rfl, rfl, rfl, rfl, rfl, rfl, rfl, rfl, rfl, rfl, rfl, rfl, rfl, rfl, rfl⟩

/-- Every operation of @main touches TensorCore buffers only. -/
theorem ops_sub : ∀ op ∈ ops (F := F), op.bufs ⊆ tcRefs τ sig := by
  unfold ops
  exact forall_append consts_sub
    (forall_append (takeOps_sub _ _ _)
    (forall_append (takeOps_sub _ _ _)
    (forall_append (takeOps_sub _ _ _)
    (forall_append (takeOps_sub _ _ _)
    (forall_append (takeOps_sub _ _ _)
    (forall_append (takeOps_sub _ _ _)
    (forall_append (takeOps_sub _ _ _)
    (forall_append (takeOps_sub _ _ _)
    (forall_append (takeOps_sub _ _ _)
    (forall_append (takeOps_sub _ _ _)
    (forall_append (takeOps_sub _ _ _)
    (forall_append (takeOps_sub _ _ _)
    (forall_append (takeOps_sub _ _ _)
    (forall_append (takeOps_sub _ _ _)
    (forall_append (takeOps_sub _ _ _)
    (forall_append (takeOps_sub _ _ _)
    (forall_append (takeOps_sub _ _ _)
    (forall_append (takeOps_sub _ _ _)
    (forall_append (takeOps_sub _ _ _)
    (forall_append (takeOps_sub _ _ _)
    (forall_append (takeOps_sub _ _ _)
    (forall_append (takeOps_sub _ _ _)
    (fun _ h => (List.not_mem_nil h).elim)))))))))))))))))))))))

/-- Every operation of @main determines what it writes. -/
theorem ops_fresh : ∀ op ∈ ops (F := F), op.fresh = ∅ := by
  unfold ops
  exact forall_append consts_fresh
    (forall_append (takeOps_fresh _ _ _)
    (forall_append (takeOps_fresh _ _ _)
    (forall_append (takeOps_fresh _ _ _)
    (forall_append (takeOps_fresh _ _ _)
    (forall_append (takeOps_fresh _ _ _)
    (forall_append (takeOps_fresh _ _ _)
    (forall_append (takeOps_fresh _ _ _)
    (forall_append (takeOps_fresh _ _ _)
    (forall_append (takeOps_fresh _ _ _)
    (forall_append (takeOps_fresh _ _ _)
    (forall_append (takeOps_fresh _ _ _)
    (forall_append (takeOps_fresh _ _ _)
    (forall_append (takeOps_fresh _ _ _)
    (forall_append (takeOps_fresh _ _ _)
    (forall_append (takeOps_fresh _ _ _)
    (forall_append (takeOps_fresh _ _ _)
    (forall_append (takeOps_fresh _ _ _)
    (forall_append (takeOps_fresh _ _ _)
    (forall_append (takeOps_fresh _ _ _)
    (forall_append (takeOps_fresh _ _ _)
    (forall_append (takeOps_fresh _ _ _)
    (forall_append (takeOps_fresh _ _ _)
    (fun _ h => (List.not_mem_nil h).elim)))))))))))))))))))))))

/-- The buffers the constants write. -/
def constRefs : List (Ref sig .tc) := [main_c, main_c_0, main_c_1, main_c_2, main_c_3, main_c_4, main_c_5, main_c_6, main_c_7, main_c_8, main_c_9, main_c_10, main_c_11, main_c_12, main_c_13, main_c_14, main_c_15, main_c_16, main_c_17, main_c_18, main_c_19, main_c_20]

theorem consts_writes :
    (consts (F := F)).Forall fun op => op.writes ⊆ (constRefs.map (Proc.devRef (τ := τ) .tc)).toFinset :=
  ⟨single_sub (by simp [constRefs]), single_sub (by simp [constRefs]), single_sub (by simp [constRefs]), single_sub (by simp [constRefs]), single_sub (by simp [constRefs]), single_sub (by simp [constRefs]), single_sub (by simp [constRefs]), single_sub (by simp [constRefs]), single_sub (by simp [constRefs]), single_sub (by simp [constRefs]), single_sub (by simp [constRefs]), single_sub (by simp [constRefs]), single_sub (by simp [constRefs]), single_sub (by simp [constRefs]), single_sub (by simp [constRefs]), single_sub (by simp [constRefs]), single_sub (by simp [constRefs]), single_sub (by simp [constRefs]), single_sub (by simp [constRefs]), single_sub (by simp [constRefs]), single_sub (by simp [constRefs]), single_sub (by simp [constRefs])⟩

/-- A buffer that is not one of the constants' holds after them what it held before. -/
theorem consts_frame (V : Valuation τ sig (Elt F)) {r : Ref sig .tc} (hr : r ∉ constRefs) :
    after consts V (Proc.devRef .tc r) = V (Proc.devRef .tc r) :=
  after_of_writes_sub _ V consts_writes hr

/-- The frame of one call, stated for one rewriting pass over a nest of calls. -/
theorem take_frame' (a : TRef sig ⟨S1600000x22, .f32⟩) (b : TRef sig ⟨S1, .i32⟩) (φ : fn_take.Bufs)
    (V : Valuation τ sig (Elt F)) {r : Ref sig .tc} (hr : r ∉ takeRefs φ) :
    after (takeOps a b φ) V (no_index (Proc.devRef .tc r)) = V (Proc.devRef .tc r) :=
  take_frame a b φ V hr

/-! ## The constants' buffers after the constants -/

set_option maxRecDepth 8192 in
theorem const0 (V : Valuation τ sig (Elt F)) :
    after consts V (main_c : DevRef τ sig) = constantI S1 32 0#32 := by
  unfold consts
  after_results_simp

set_option maxRecDepth 8192 in
theorem const1 (V : Valuation τ sig (Elt F)) :
    after consts V (main_c_0 : DevRef τ sig) = constantI S1 32 1#32 := by
  unfold consts
  after_results_simp

set_option maxRecDepth 8192 in
theorem const2 (V : Valuation τ sig (Elt F)) :
    after consts V (main_c_1 : DevRef τ sig) = constantI S1 32 2#32 := by
  unfold consts
  after_results_simp

set_option maxRecDepth 8192 in
theorem const3 (V : Valuation τ sig (Elt F)) :
    after consts V (main_c_2 : DevRef τ sig) = constantI S1 32 3#32 := by
  unfold consts
  after_results_simp

set_option maxRecDepth 8192 in
theorem const4 (V : Valuation τ sig (Elt F)) :
    after consts V (main_c_3 : DevRef τ sig) = constantI S1 32 4#32 := by
  unfold consts
  after_results_simp

set_option maxRecDepth 8192 in
theorem const5 (V : Valuation τ sig (Elt F)) :
    after consts V (main_c_4 : DevRef τ sig) = constantI S1 32 5#32 := by
  unfold consts
  after_results_simp

set_option maxRecDepth 8192 in
theorem const6 (V : Valuation τ sig (Elt F)) :
    after consts V (main_c_5 : DevRef τ sig) = constantI S1 32 6#32 := by
  unfold consts
  after_results_simp

set_option maxRecDepth 8192 in
theorem const7 (V : Valuation τ sig (Elt F)) :
    after consts V (main_c_6 : DevRef τ sig) = constantI S1 32 7#32 := by
  unfold consts
  after_results_simp

set_option maxRecDepth 8192 in
theorem const8 (V : Valuation τ sig (Elt F)) :
    after consts V (main_c_7 : DevRef τ sig) = constantI S1 32 8#32 := by
  unfold consts
  after_results_simp

set_option maxRecDepth 8192 in
theorem const9 (V : Valuation τ sig (Elt F)) :
    after consts V (main_c_8 : DevRef τ sig) = constantI S1 32 9#32 := by
  unfold consts
  after_results_simp

set_option maxRecDepth 8192 in
theorem const10 (V : Valuation τ sig (Elt F)) :
    after consts V (main_c_9 : DevRef τ sig) = constantI S1 32 10#32 := by
  unfold consts
  after_results_simp

set_option maxRecDepth 8192 in
theorem const11 (V : Valuation τ sig (Elt F)) :
    after consts V (main_c_10 : DevRef τ sig) = constantI S1 32 11#32 := by
  unfold consts
  after_results_simp

set_option maxRecDepth 8192 in
theorem const12 (V : Valuation τ sig (Elt F)) :
    after consts V (main_c_11 : DevRef τ sig) = constantI S1 32 12#32 := by
  unfold consts
  after_results_simp

set_option maxRecDepth 8192 in
theorem const13 (V : Valuation τ sig (Elt F)) :
    after consts V (main_c_12 : DevRef τ sig) = constantI S1 32 13#32 := by
  unfold consts
  after_results_simp

set_option maxRecDepth 8192 in
theorem const14 (V : Valuation τ sig (Elt F)) :
    after consts V (main_c_13 : DevRef τ sig) = constantI S1 32 14#32 := by
  unfold consts
  after_results_simp

set_option maxRecDepth 8192 in
theorem const15 (V : Valuation τ sig (Elt F)) :
    after consts V (main_c_14 : DevRef τ sig) = constantI S1 32 15#32 := by
  unfold consts
  after_results_simp

set_option maxRecDepth 8192 in
theorem const16 (V : Valuation τ sig (Elt F)) :
    after consts V (main_c_15 : DevRef τ sig) = constantI S1 32 16#32 := by
  unfold consts
  after_results_simp

set_option maxRecDepth 8192 in
theorem const17 (V : Valuation τ sig (Elt F)) :
    after consts V (main_c_16 : DevRef τ sig) = constantI S1 32 17#32 := by
  unfold consts
  after_results_simp

set_option maxRecDepth 8192 in
theorem const18 (V : Valuation τ sig (Elt F)) :
    after consts V (main_c_17 : DevRef τ sig) = constantI S1 32 18#32 := by
  unfold consts
  after_results_simp

set_option maxRecDepth 8192 in
theorem const19 (V : Valuation τ sig (Elt F)) :
    after consts V (main_c_18 : DevRef τ sig) = constantI S1 32 19#32 := by
  unfold consts
  after_results_simp

set_option maxRecDepth 8192 in
theorem const20 (V : Valuation τ sig (Elt F)) :
    after consts V (main_c_19 : DevRef τ sig) = constantI S1 32 20#32 := by
  unfold consts
  after_results_simp

set_option maxRecDepth 8192 in
theorem const21 (V : Valuation τ sig (Elt F)) :
    after consts V (main_c_20 : DevRef τ sig) = constantI S1 32 21#32 := by
  unfold consts
  after_results_simp

/-! ## The results

Result `J` is written by call `J` alone: the later calls leave it (their buffers are other buffers), call `J`
leaves it at the call's function of the operand's contents and of its index array's contents before the call; the
earlier calls leave both of those buffers, the constants leave the operand and put the word `J` in the index
array; and for that word the call's function is column `J`. -/

set_option maxRecDepth 8192 in
theorem res0 (V : Valuation τ sig (Elt F)) :
    after ops V (main_v0 : DevRef τ sig) = Cert.Spec.col 0 (V (main_arg0 : DevRef τ sig)) := by
  simp only [ops, after_append, after_nil]
  try simp (disch := decide) only [take_frame']
  rw [call0]
  try simp (disch := decide) only [take_frame']
  rw [const0, consts_frame (r := main_arg0) _ (by decide)]
  exact takeVal_const 0 _

set_option maxRecDepth 8192 in
theorem res1 (V : Valuation τ sig (Elt F)) :
    after ops V (main_v1 : DevRef τ sig) = Cert.Spec.col 1 (V (main_arg0 : DevRef τ sig)) := by
  simp only [ops, after_append, after_nil]
  try simp (disch := decide) only [take_frame']
  rw [call1]
  try simp (disch := decide) only [take_frame']
  rw [const1, consts_frame (r := main_arg0) _ (by decide)]
  exact takeVal_const 1 _

set_option maxRecDepth 8192 in
theorem res2 (V : Valuation τ sig (Elt F)) :
    after ops V (main_v2 : DevRef τ sig) = Cert.Spec.col 2 (V (main_arg0 : DevRef τ sig)) := by
  simp only [ops, after_append, after_nil]
  try simp (disch := decide) only [take_frame']
  rw [call2]
  try simp (disch := decide) only [take_frame']
  rw [const2, consts_frame (r := main_arg0) _ (by decide)]
  exact takeVal_const 2 _

set_option maxRecDepth 8192 in
theorem res3 (V : Valuation τ sig (Elt F)) :
    after ops V (main_v3 : DevRef τ sig) = Cert.Spec.col 3 (V (main_arg0 : DevRef τ sig)) := by
  simp only [ops, after_append, after_nil]
  try simp (disch := decide) only [take_frame']
  rw [call3]
  try simp (disch := decide) only [take_frame']
  rw [const3, consts_frame (r := main_arg0) _ (by decide)]
  exact takeVal_const 3 _

set_option maxRecDepth 8192 in
theorem res4 (V : Valuation τ sig (Elt F)) :
    after ops V (main_v4 : DevRef τ sig) = Cert.Spec.col 4 (V (main_arg0 : DevRef τ sig)) := by
  simp only [ops, after_append, after_nil]
  try simp (disch := decide) only [take_frame']
  rw [call4]
  try simp (disch := decide) only [take_frame']
  rw [const4, consts_frame (r := main_arg0) _ (by decide)]
  exact takeVal_const 4 _

set_option maxRecDepth 8192 in
theorem res5 (V : Valuation τ sig (Elt F)) :
    after ops V (main_v5 : DevRef τ sig) = Cert.Spec.col 5 (V (main_arg0 : DevRef τ sig)) := by
  simp only [ops, after_append, after_nil]
  try simp (disch := decide) only [take_frame']
  rw [call5]
  try simp (disch := decide) only [take_frame']
  rw [const5, consts_frame (r := main_arg0) _ (by decide)]
  exact takeVal_const 5 _

set_option maxRecDepth 8192 in
theorem res6 (V : Valuation τ sig (Elt F)) :
    after ops V (main_v6 : DevRef τ sig) = Cert.Spec.col 6 (V (main_arg0 : DevRef τ sig)) := by
  simp only [ops, after_append, after_nil]
  try simp (disch := decide) only [take_frame']
  rw [call6]
  try simp (disch := decide) only [take_frame']
  rw [const6, consts_frame (r := main_arg0) _ (by decide)]
  exact takeVal_const 6 _

set_option maxRecDepth 8192 in
theorem res7 (V : Valuation τ sig (Elt F)) :
    after ops V (main_v7 : DevRef τ sig) = Cert.Spec.col 7 (V (main_arg0 : DevRef τ sig)) := by
  simp only [ops, after_append, after_nil]
  try simp (disch := decide) only [take_frame']
  rw [call7]
  try simp (disch := decide) only [take_frame']
  rw [const7, consts_frame (r := main_arg0) _ (by decide)]
  exact takeVal_const 7 _

set_option maxRecDepth 8192 in
theorem res8 (V : Valuation τ sig (Elt F)) :
    after ops V (main_v8 : DevRef τ sig) = Cert.Spec.col 8 (V (main_arg0 : DevRef τ sig)) := by
  simp only [ops, after_append, after_nil]
  try simp (disch := decide) only [take_frame']
  rw [call8]
  try simp (disch := decide) only [take_frame']
  rw [const8, consts_frame (r := main_arg0) _ (by decide)]
  exact takeVal_const 8 _

set_option maxRecDepth 8192 in
theorem res9 (V : Valuation τ sig (Elt F)) :
    after ops V (main_v9 : DevRef τ sig) = Cert.Spec.col 9 (V (main_arg0 : DevRef τ sig)) := by
  simp only [ops, after_append, after_nil]
  try simp (disch := decide) only [take_frame']
  rw [call9]
  try simp (disch := decide) only [take_frame']
  rw [const9, consts_frame (r := main_arg0) _ (by decide)]
  exact takeVal_const 9 _

set_option maxRecDepth 8192 in
theorem res10 (V : Valuation τ sig (Elt F)) :
    after ops V (main_v10 : DevRef τ sig) = Cert.Spec.col 10 (V (main_arg0 : DevRef τ sig)) := by
  simp only [ops, after_append, after_nil]
  try simp (disch := decide) only [take_frame']
  rw [call10]
  try simp (disch := decide) only [take_frame']
  rw [const10, consts_frame (r := main_arg0) _ (by decide)]
  exact takeVal_const 10 _

set_option maxRecDepth 8192 in
theorem res11 (V : Valuation τ sig (Elt F)) :
    after ops V (main_v11 : DevRef τ sig) = Cert.Spec.col 11 (V (main_arg0 : DevRef τ sig)) := by
  simp only [ops, after_append, after_nil]
  try simp (disch := decide) only [take_frame']
  rw [call11]
  try simp (disch := decide) only [take_frame']
  rw [const11, consts_frame (r := main_arg0) _ (by decide)]
  exact takeVal_const 11 _

set_option maxRecDepth 8192 in
theorem res12 (V : Valuation τ sig (Elt F)) :
    after ops V (main_v12 : DevRef τ sig) = Cert.Spec.col 12 (V (main_arg0 : DevRef τ sig)) := by
  simp only [ops, after_append, after_nil]
  try simp (disch := decide) only [take_frame']
  rw [call12]
  try simp (disch := decide) only [take_frame']
  rw [const12, consts_frame (r := main_arg0) _ (by decide)]
  exact takeVal_const 12 _

set_option maxRecDepth 8192 in
theorem res13 (V : Valuation τ sig (Elt F)) :
    after ops V (main_v13 : DevRef τ sig) = Cert.Spec.col 13 (V (main_arg0 : DevRef τ sig)) := by
  simp only [ops, after_append, after_nil]
  try simp (disch := decide) only [take_frame']
  rw [call13]
  try simp (disch := decide) only [take_frame']
  rw [const13, consts_frame (r := main_arg0) _ (by decide)]
  exact takeVal_const 13 _

set_option maxRecDepth 8192 in
theorem res14 (V : Valuation τ sig (Elt F)) :
    after ops V (main_v14 : DevRef τ sig) = Cert.Spec.col 14 (V (main_arg0 : DevRef τ sig)) := by
  simp only [ops, after_append, after_nil]
  try simp (disch := decide) only [take_frame']
  rw [call14]
  try simp (disch := decide) only [take_frame']
  rw [const14, consts_frame (r := main_arg0) _ (by decide)]
  exact takeVal_const 14 _

set_option maxRecDepth 8192 in
theorem res15 (V : Valuation τ sig (Elt F)) :
    after ops V (main_v15 : DevRef τ sig) = Cert.Spec.col 15 (V (main_arg0 : DevRef τ sig)) := by
  simp only [ops, after_append, after_nil]
  try simp (disch := decide) only [take_frame']
  rw [call15]
  try simp (disch := decide) only [take_frame']
  rw [const15, consts_frame (r := main_arg0) _ (by decide)]
  exact takeVal_const 15 _

set_option maxRecDepth 8192 in
theorem res16 (V : Valuation τ sig (Elt F)) :
    after ops V (main_v16 : DevRef τ sig) = Cert.Spec.col 16 (V (main_arg0 : DevRef τ sig)) := by
  simp only [ops, after_append, after_nil]
  try simp (disch := decide) only [take_frame']
  rw [call16]
  try simp (disch := decide) only [take_frame']
  rw [const16, consts_frame (r := main_arg0) _ (by decide)]
  exact takeVal_const 16 _

set_option maxRecDepth 8192 in
theorem res17 (V : Valuation τ sig (Elt F)) :
    after ops V (main_v17 : DevRef τ sig) = Cert.Spec.col 17 (V (main_arg0 : DevRef τ sig)) := by
  simp only [ops, after_append, after_nil]
  try simp (disch := decide) only [take_frame']
  rw [call17]
  try simp (disch := decide) only [take_frame']
  rw [const17, consts_frame (r := main_arg0) _ (by decide)]
  exact takeVal_const 17 _

set_option maxRecDepth 8192 in
theorem res18 (V : Valuation τ sig (Elt F)) :
    after ops V (main_v18 : DevRef τ sig) = Cert.Spec.col 18 (V (main_arg0 : DevRef τ sig)) := by
  simp only [ops, after_append, after_nil]
  try simp (disch := decide) only [take_frame']
  rw [call18]
  try simp (disch := decide) only [take_frame']
  rw [const18, consts_frame (r := main_arg0) _ (by decide)]
  exact takeVal_const 18 _

set_option maxRecDepth 8192 in
theorem res19 (V : Valuation τ sig (Elt F)) :
    after ops V (main_v19 : DevRef τ sig) = Cert.Spec.col 19 (V (main_arg0 : DevRef τ sig)) := by
  simp only [ops, after_append, after_nil]
  try simp (disch := decide) only [take_frame']
  rw [call19]
  try simp (disch := decide) only [take_frame']
  rw [const19, consts_frame (r := main_arg0) _ (by decide)]
  exact takeVal_const 19 _

set_option maxRecDepth 8192 in
theorem res20 (V : Valuation τ sig (Elt F)) :
    after ops V (main_v20 : DevRef τ sig) = Cert.Spec.col 20 (V (main_arg0 : DevRef τ sig)) := by
  simp only [ops, after_append, after_nil]
  try simp (disch := decide) only [take_frame']
  rw [call20]
  try simp (disch := decide) only [take_frame']
  rw [const20, consts_frame (r := main_arg0) _ (by decide)]
  exact takeVal_const 20 _

set_option maxRecDepth 8192 in
theorem res21 (V : Valuation τ sig (Elt F)) :
    after ops V (main_v21 : DevRef τ sig) = Cert.Spec.col 21 (V (main_arg0 : DevRef τ sig)) := by
  simp only [ops, after_append, after_nil]
  try simp (disch := decide) only [take_frame']
  rw [call21]
  try simp (disch := decide) only [take_frame']
  rw [const21, consts_frame (r := main_arg0) _ (by decide)]
  exact takeVal_const 21 _

/-- The argument is written by nothing. -/
theorem res_arg0 (V : Valuation τ sig (Elt F)) :
    after ops V (main_arg0 : DevRef τ sig) = V (main_arg0 : DevRef τ sig) := by
  simp only [ops, after_append, after_nil]
  simp (disch := decide) only [take_frame']
  exact consts_frame (r := main_arg0) _ (by decide)

/-! ## The run -/

/-- On every device, for any float values, from any memory with zero counters: every weakly fair execution of
    @main terminates with result `J` at column `J` of the argument's launch contents, `J = 0, …, 21`, and the
    argument unchanged. -/
theorem run_any (m : (ℓ : Loc nD τ sig) → Buf (Elt F) ℓ) (ρ : Dev nD → PrngReg) :
    θ_run (defs (F := F)) (onTc (τ := τ) (main (F := F))) ⟨m, fun _ => 0, ρ⟩ fun r => ∀ c : Dev nD,
      r.2.mem ((c.tc : Thread nD τ).loc main_v0) = Cert.Spec.col 0 (m ((c.tc : Thread nD τ).loc main_arg0))
      ∧ r.2.mem ((c.tc : Thread nD τ).loc main_v1) = Cert.Spec.col 1 (m ((c.tc : Thread nD τ).loc main_arg0))
      ∧ r.2.mem ((c.tc : Thread nD τ).loc main_v2) = Cert.Spec.col 2 (m ((c.tc : Thread nD τ).loc main_arg0))
      ∧ r.2.mem ((c.tc : Thread nD τ).loc main_v3) = Cert.Spec.col 3 (m ((c.tc : Thread nD τ).loc main_arg0))
      ∧ r.2.mem ((c.tc : Thread nD τ).loc main_v4) = Cert.Spec.col 4 (m ((c.tc : Thread nD τ).loc main_arg0))
      ∧ r.2.mem ((c.tc : Thread nD τ).loc main_v5) = Cert.Spec.col 5 (m ((c.tc : Thread nD τ).loc main_arg0))
      ∧ r.2.mem ((c.tc : Thread nD τ).loc main_v6) = Cert.Spec.col 6 (m ((c.tc : Thread nD τ).loc main_arg0))
      ∧ r.2.mem ((c.tc : Thread nD τ).loc main_v7) = Cert.Spec.col 7 (m ((c.tc : Thread nD τ).loc main_arg0))
      ∧ r.2.mem ((c.tc : Thread nD τ).loc main_v8) = Cert.Spec.col 8 (m ((c.tc : Thread nD τ).loc main_arg0))
      ∧ r.2.mem ((c.tc : Thread nD τ).loc main_v9) = Cert.Spec.col 9 (m ((c.tc : Thread nD τ).loc main_arg0))
      ∧ r.2.mem ((c.tc : Thread nD τ).loc main_v10) = Cert.Spec.col 10 (m ((c.tc : Thread nD τ).loc main_arg0))
      ∧ r.2.mem ((c.tc : Thread nD τ).loc main_v11) = Cert.Spec.col 11 (m ((c.tc : Thread nD τ).loc main_arg0))
      ∧ r.2.mem ((c.tc : Thread nD τ).loc main_v12) = Cert.Spec.col 12 (m ((c.tc : Thread nD τ).loc main_arg0))
      ∧ r.2.mem ((c.tc : Thread nD τ).loc main_v13) = Cert.Spec.col 13 (m ((c.tc : Thread nD τ).loc main_arg0))
      ∧ r.2.mem ((c.tc : Thread nD τ).loc main_v14) = Cert.Spec.col 14 (m ((c.tc : Thread nD τ).loc main_arg0))
      ∧ r.2.mem ((c.tc : Thread nD τ).loc main_v15) = Cert.Spec.col 15 (m ((c.tc : Thread nD τ).loc main_arg0))
      ∧ r.2.mem ((c.tc : Thread nD τ).loc main_v16) = Cert.Spec.col 16 (m ((c.tc : Thread nD τ).loc main_arg0))
      ∧ r.2.mem ((c.tc : Thread nD τ).loc main_v17) = Cert.Spec.col 17 (m ((c.tc : Thread nD τ).loc main_arg0))
      ∧ r.2.mem ((c.tc : Thread nD τ).loc main_v18) = Cert.Spec.col 18 (m ((c.tc : Thread nD τ).loc main_arg0))
      ∧ r.2.mem ((c.tc : Thread nD τ).loc main_v19) = Cert.Spec.col 19 (m ((c.tc : Thread nD τ).loc main_arg0))
      ∧ r.2.mem ((c.tc : Thread nD τ).loc main_v20) = Cert.Spec.col 20 (m ((c.tc : Thread nD τ).loc main_arg0))
      ∧ r.2.mem ((c.tc : Thread nD τ).loc main_v21) = Cert.Spec.col 21 (m ((c.tc : Thread nD τ).loc main_arg0))
      ∧ r.2.mem ((c.tc : Thread nD τ).loc main_arg0) = m ((c.tc : Thread nD τ).loc main_arg0) :=
  (θ_run defs _ _).mono (fun _ h c => ⟨(h c main_v0).trans (res0 _),
      (h c main_v1).trans (res1 _),
      (h c main_v2).trans (res2 _),
      (h c main_v3).trans (res3 _),
      (h c main_v4).trans (res4 _),
      (h c main_v5).trans (res5 _),
      (h c main_v6).trans (res6 _),
      (h c main_v7).trans (res7 _),
      (h c main_v8).trans (res8 _),
      (h c main_v9).trans (res9 _),
      (h c main_v10).trans (res10 _),
      (h c main_v11).trans (res11 _),
      (h c main_v12).trans (res12 _),
      (h c main_v13).trans (res13 _),
      (h c main_v14).trans (res14 _),
      (h c main_v15).trans (res15 _),
      (h c main_v16).trans (res16 _),
      (h c main_v17).trans (res17 _),
      (h c main_v18).trans (res18 _),
      (h c main_v19).trans (res19 _),
      (h c main_v20).trans (res20 _),
      (h c main_v21).trans (res21 _),
      (h c main_arg0).trans (res_arg0 _)⟩)
    (run_seq scopedRefs_eq scopedSems_eq defs main (fun _ => ops) main_eq
      (fun _ => List.forall_iff_forall_mem.mpr ops_sub) m ρ (fun _ => ops_fresh))

/-- The same at the ideal instance, where a float is an extended real. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v0) = Cert.Spec.col 0 (m ((c.tc : Thread nD τ).loc main_arg0))
      ∧ r.2.mem ((c.tc : Thread nD τ).loc main_v1) = Cert.Spec.col 1 (m ((c.tc : Thread nD τ).loc main_arg0))
      ∧ r.2.mem ((c.tc : Thread nD τ).loc main_v2) = Cert.Spec.col 2 (m ((c.tc : Thread nD τ).loc main_arg0))
      ∧ r.2.mem ((c.tc : Thread nD τ).loc main_v3) = Cert.Spec.col 3 (m ((c.tc : Thread nD τ).loc main_arg0))
      ∧ r.2.mem ((c.tc : Thread nD τ).loc main_v4) = Cert.Spec.col 4 (m ((c.tc : Thread nD τ).loc main_arg0))
      ∧ r.2.mem ((c.tc : Thread nD τ).loc main_v5) = Cert.Spec.col 5 (m ((c.tc : Thread nD τ).loc main_arg0))
      ∧ r.2.mem ((c.tc : Thread nD τ).loc main_v6) = Cert.Spec.col 6 (m ((c.tc : Thread nD τ).loc main_arg0))
      ∧ r.2.mem ((c.tc : Thread nD τ).loc main_v7) = Cert.Spec.col 7 (m ((c.tc : Thread nD τ).loc main_arg0))
      ∧ r.2.mem ((c.tc : Thread nD τ).loc main_v8) = Cert.Spec.col 8 (m ((c.tc : Thread nD τ).loc main_arg0))
      ∧ r.2.mem ((c.tc : Thread nD τ).loc main_v9) = Cert.Spec.col 9 (m ((c.tc : Thread nD τ).loc main_arg0))
      ∧ r.2.mem ((c.tc : Thread nD τ).loc main_v10) = Cert.Spec.col 10 (m ((c.tc : Thread nD τ).loc main_arg0))
      ∧ r.2.mem ((c.tc : Thread nD τ).loc main_v11) = Cert.Spec.col 11 (m ((c.tc : Thread nD τ).loc main_arg0))
      ∧ r.2.mem ((c.tc : Thread nD τ).loc main_v12) = Cert.Spec.col 12 (m ((c.tc : Thread nD τ).loc main_arg0))
      ∧ r.2.mem ((c.tc : Thread nD τ).loc main_v13) = Cert.Spec.col 13 (m ((c.tc : Thread nD τ).loc main_arg0))
      ∧ r.2.mem ((c.tc : Thread nD τ).loc main_v14) = Cert.Spec.col 14 (m ((c.tc : Thread nD τ).loc main_arg0))
      ∧ r.2.mem ((c.tc : Thread nD τ).loc main_v15) = Cert.Spec.col 15 (m ((c.tc : Thread nD τ).loc main_arg0))
      ∧ r.2.mem ((c.tc : Thread nD τ).loc main_v16) = Cert.Spec.col 16 (m ((c.tc : Thread nD τ).loc main_arg0))
      ∧ r.2.mem ((c.tc : Thread nD τ).loc main_v17) = Cert.Spec.col 17 (m ((c.tc : Thread nD τ).loc main_arg0))
      ∧ r.2.mem ((c.tc : Thread nD τ).loc main_v18) = Cert.Spec.col 18 (m ((c.tc : Thread nD τ).loc main_arg0))
      ∧ r.2.mem ((c.tc : Thread nD τ).loc main_v19) = Cert.Spec.col 19 (m ((c.tc : Thread nD τ).loc main_arg0))
      ∧ r.2.mem ((c.tc : Thread nD τ).loc main_v20) = Cert.Spec.col 20 (m ((c.tc : Thread nD τ).loc main_arg0))
      ∧ r.2.mem ((c.tc : Thread nD τ).loc main_v21) = Cert.Spec.col 21 (m ((c.tc : Thread nD τ).loc main_arg0))
      ∧ r.2.mem ((c.tc : Thread nD τ).loc main_arg0) = m ((c.tc : Thread nD τ).loc main_arg0) :=
  run_any m ρ

end Cert.ReferenceIdeal.RefValue

end
-- ==== Proof.LaunchPieces.lean ====
/-
  The pieces of a row: 500 runs of 3200 consecutive positions cover the 1600000 positions of a row, run number p
  being piece n of the vector subcore (c, s) with p = 2·s + c + 32·n. Here, as facts about sets of indices: the runs
  of the flat array of 1600000 are pairwise disjoint and cover it; the runs within row q of the 22 × 1600000 array
  are pairwise disjoint and cover that row; and a separating conjunction over the runs is one over SparseCores,
  vector subcores and piece numbers, empty where the subcore has no such piece.
-/
import Idealize.ShloMosaic.Lib.SparseCore.Launch

noncomputable section

namespace Cert.Proof.Pieces

open Idealize.ShloMosaic
open Idealize.SL Idealize.SL.RA Idealize.SL.BI
open scoped Idealize.SL.BI

abbrev SO : Shape := ⟨1, ![1600000]⟩
abbrev SX : Shape := ⟨2, ![22, 1600000]⟩

/-- The kernels' grid, and a vector subcore's coordinates in it as the body table spells them. -/
abbrev G : Pipeline.Grid := ⟨2, ![2, 16], ![false, false]⟩
abbrev crd (c : Fin 2) (s : Fin 16) : G.Coords := fun | 0 => c | 1 => s | ⟨_ + 2, h⟩ => absurd h (Nat.not_lt.2 (Nat.le_add_left _ _))

/-- A SparseCore, a vector subcore of it, a piece number. -/
abbrev Tri : Type := Fin 2 × Fin 16 × ℕ

/-- The run's number in the row. -/
def pnum (t : Tri) : ℕ := 2 * t.2.1.val + t.1.val + 32 * t.2.2

/-- The pieces that exist: run numbers below 500 (piece numbers below 18 is no restriction: 32 · 16 > 500). -/
def tris : Finset Tri := ((Finset.univ : Finset (Fin 2)) ×ˢ ((Finset.univ : Finset (Fin 16)) ×ˢ Finset.range 18)).filter fun t => pnum t < 500

theorem pnum_inj {t t' : Tri} (h : pnum t = pnum t') : t = t' := by
  obtain ⟨c, s, n⟩ := t; obtain ⟨c', s', n'⟩ := t'
  simp only [pnum] at h
  have hc := c.isLt; have hc' := c'.isLt; have hs := s.isLt; have hs' := s'.isLt
  have e1 : c.val = c'.val := by omega
  have e2 : s.val = s'.val := by omega
  have e3 : n = n' := by omega
  exact Prod.ext (Fin.ext e1) (Prod.ext (Fin.ext e2) e3)

theorem mem_tris {t : Tri} : t ∈ tris ↔ t.2.2 < 18 ∧ pnum t < 500 := by
  simp only [tris, Finset.mem_filter, Finset.mem_product, Finset.mem_univ, Finset.mem_range, true_and]

/-- The run of a given number, clamped to the last so that it is in bounds for every number. -/
abbrev start (p : ℕ) : ℕ := 3200 * min p 499

theorem out_inb (p : ℕ) : ∀ a, (![start p] : Fin 1 → ℕ) a + (![3200] : Fin 1 → ℕ) a ≤ SO.size a :=
  Fin.forall_fin_one.mpr (by show start p + 3200 ≤ 1600000; unfold start; omega)
theorem in_inb (q : ℕ) (hq : q < 22) (p : ℕ) : ∀ a, (![q, start p] : Fin 2 → ℕ) a + (![1, 3200] : Fin 2 → ℕ) a ≤ SX.size a :=
  Fin.forall_fin_two.mpr ⟨by show q + 1 ≤ 22; omega, by show start p + 3200 ≤ 1600000; unfold start; omega⟩

def outSet (t : Tri) : Finset SO.Idx := (Rect.unit (s := SO) ![start (pnum t)] ![3200] (out_inb _)).set
def inSet (q : ℕ) (hq : q < 22) (t : Tri) : Finset SX.Idx := (Rect.unit (s := SX) ![q, start (pnum t)] ![1, 3200] (in_inb q hq _)).set
/-- Row q of the 22 × 1600000 array. -/
def rowSet (q : ℕ) : Finset SX.Idx := Finset.univ.filter fun i => (i 0).val = q

theorem mem_outSet {t : Tri} {i : SO.Idx} : i ∈ outSet t ↔ start (pnum t) ≤ (i 0).val ∧ (i 0).val < start (pnum t) + 3200 := by
  unfold outSet; rw [Rect.mem_set_unit, Fin.forall_fin_one]; rfl
theorem mem_inSet {q : ℕ} {hq : q < 22} {t : Tri} {i : SX.Idx} :
    i ∈ inSet q hq t ↔ (q ≤ (i 0).val ∧ (i 0).val < q + 1) ∧ (start (pnum t) ≤ (i 1).val ∧ (i 1).val < start (pnum t) + 3200) := by
  unfold inSet; rw [Rect.mem_set_unit, Fin.forall_fin_two]; rfl

theorem out_disj : ∀ t ∈ tris, ∀ t' ∈ tris, t ≠ t' → Disjoint (outSet t) (outSet t') := by
  intro t ht t' ht' hne
  have hp := (mem_tris.mp ht).2; have hp' := (mem_tris.mp ht').2
  have hpp : pnum t ≠ pnum t' := fun e => hne (pnum_inj e)
  refine Finset.disjoint_left.mpr fun i h1 h2 => ?_
  have a1 := mem_outSet.mp h1; have a2 := mem_outSet.mp h2
  unfold start at a1 a2; omega

theorem in_disj (q : ℕ) (hq : q < 22) : ∀ t ∈ tris, ∀ t' ∈ tris, t ≠ t' → Disjoint (inSet q hq t) (inSet q hq t') := by
  intro t ht t' ht' hne
  have hp := (mem_tris.mp ht).2; have hp' := (mem_tris.mp ht').2
  have hpp : pnum t ≠ pnum t' := fun e => hne (pnum_inj e)
  refine Finset.disjoint_left.mpr fun i h1 h2 => ?_
  have a1 := (mem_inSet.mp h1).2; have a2 := (mem_inSet.mp h2).2
  unfold start at a1 a2; omega

/-- The piece that holds position v of a row. -/
def triOf (v : ℕ) : Tri := (⟨(v / 3200) % 2, Nat.mod_lt _ (by omega)⟩, ⟨((v / 3200) / 2) % 16, Nat.mod_lt _ (by omega)⟩, (v / 3200) / 32)

theorem pnum_triOf (v : ℕ) : pnum (triOf v) = v / 3200 := by
  simp only [pnum, triOf]; omega
theorem triOf_mem {v : ℕ} (hv : v < 1600000) : triOf v ∈ tris := by
  rw [mem_tris, pnum_triOf]; simp only [triOf]; omega

theorem out_cover : tris.biUnion outSet = Finset.univ := by
  refine Finset.eq_univ_iff_forall.mpr fun i => Finset.mem_biUnion.mpr ⟨triOf (i 0).val, triOf_mem (i 0).isLt, ?_⟩
  have h0 : (i 0).val < 1600000 := (i 0).isLt
  rw [mem_outSet, pnum_triOf]; unfold start; omega

theorem in_cover (q : ℕ) (hq : q < 22) : tris.biUnion (inSet q hq) = rowSet q := by
  ext i
  simp only [Finset.mem_biUnion, rowSet, Finset.mem_filter, Finset.mem_univ, true_and]
  constructor
  · rintro ⟨t, -, h⟩; have := (mem_inSet.mp h).1; omega
  · intro h
    have h1 : (i 1).val < 1600000 := (i 1).isLt
    refine ⟨triOf (i 1).val, triOf_mem h1, mem_inSet.mpr ⟨by omega, ?_⟩⟩
    rw [pnum_triOf]; unfold start; omega

/-- A separating conjunction over the existing pieces, as one over SparseCores, vector subcores and piece numbers. -/
theorem bigSep_tris {M : Type} [URA M] (Φ : Tri → sProp M) :
    bigSep tris Φ = bigSep Finset.univ fun c : Fin 2 => bigSep Finset.univ fun s : Fin 16 => bigSep (Finset.range 18) fun n =>
      if pnum (c, s, n) < 500 then Φ (c, s, n) else (emp : sProp M) := by
  unfold tris
  rw [bigSep_filter, SparseCore.bigSep_product]
  refine bigSep_congr fun c _ => ?_
  rw [SparseCore.bigSep_product]

end Cert.Proof.Pieces

end
-- ==== Proof.TileK0Defs.lean ====
/-
  One vector subcore's task of the first copy kernel: definitions. The task moves its pieces of row 0 of the
  transposed argument (pieces of 3200 consecutive elements, piece number 2·s + c + 32·n for the subcore (c, s) and
  n = 0, 1, … while that number is below 500) into the flat result: each piece is fetched into a staging row, copied
  16 lanes at a time into a flat staging buffer, and written out, two pieces in flight at a time. Here: the pieces as
  memrefs, the program's own spellings of them, the printed conditions as facts about the trip, the two slots' states
  between trips, and what the tile holds outside the slots.
-/
import proofs.«206869_g37898791420194_cont_8to1_b_558_20_alg».proof.Defs
import Idealize.ShloMosaic.Lib.SparseCore.Launch
import Idealize.ShloMosaic.Lib.StableHlo.Run
import Idealize.ShloMosaic.Lib.Pipeline.Kit
import Idealize.ShloMosaic.Lib.Tactic
import proofs.«206869_g37898791420194_cont_8to1_b_558_20_alg».proof.Proof.Gen.KernelIdeal
import proofs.«206869_g37898791420194_cont_8to1_b_558_20_alg».proof.Proof.Gen.KernelIdeal.Skeleton
import proofs.«206869_g37898791420194_cont_8to1_b_558_20_alg».proof.Proof.Spec

noncomputable section

namespace Cert.Proof.TileK0

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

abbrev ΛP : Labels := Pipeline.Sig Λ₀ (Fin 0) fun p => (pcfgs (F := F) p).Adm
abbrev K : SparseCore.Cfg τ sig (ΛP (F := F)) 22 := sc (F := F)
abbrev 𝒱₀ : Variants := Variants.none

abbrev UH : Type := URounds (GSem nD τ sig) ℕ
abbrev UU : Type := UH × Counters

local notation "𝕄" => MT nD τ sig (HIx 22) (Elt F) ℕ UU ℕ

local notation "xtW" => (Memref.whole Cert.KernelIdeal.main_v0_scv : Memref Cert.KernelIdeal.sig Kind.scVector Space.hbm Cert.KernelIdeal.S22x1600000 EltTy.f32)
local notation "oW" => (Memref.whole Cert.KernelIdeal.main_v1_scv : Memref Cert.KernelIdeal.sig Kind.scVector Space.hbm Cert.KernelIdeal.S1600000 EltTy.f32)
local notation "a4" => (Memref.whole Cert.KernelIdeal.cc0_scratch0 : Memref Cert.KernelIdeal.sig Kind.scVector Space.vmem Cert.KernelIdeal.S8x3200 EltTy.f32)
local notation "a5" => (Memref.whole Cert.KernelIdeal.cc0_scratch1 : Memref Cert.KernelIdeal.sig Kind.scVector Space.vmem Cert.KernelIdeal.S8x3200 EltTy.f32)
local notation "a6" => (Memref.whole Cert.KernelIdeal.cc0_scratch2 : Memref Cert.KernelIdeal.sig Kind.scVector Space.vmem Cert.KernelIdeal.S25600 EltTy.f32)
local notation "a7" => (Memref.whole Cert.KernelIdeal.cc0_scratch3 : Memref Cert.KernelIdeal.sig Kind.scVector Space.vmem Cert.KernelIdeal.S25600 EltTy.f32)

variable [FloatOps F]

section Tile

variable (d : Dev nD) (L : grid0.Coords)

abbrev cV (L : grid0.Coords) : Fin τ.nSC := (L 0).castLE hcore0
abbrev jV (L : grid0.Coords) : Fin τ.nSub := (L 1).castLE hsub0
abbrev thr (d : Dev nD) (L : grid0.Coords) : Thread nD τ := V d (cV L) (jV L)

/-- The tile's number 2·s + c, and whether it has sixteen pieces (numbers below 20) or fifteen. -/
abbrev wid (L : grid0.Coords) : ℕ := 2 * (L 1).val + (L 0).val
abbrev big (L : grid0.Coords) : Prop := wid L < 20

omit [FloatOps F] in
theorem wid_lt (L : grid0.Coords) : wid L < 32 := by
  have h0 : (L 0).val < 2 := (L 0).isLt
  have h1 : (L 1).val < 16 := (L 1).isLt
  unfold wid; omega

/-- Piece `n` of the tile exists: `n < 15`, or `n = 15` on a tile with sixteen pieces. It is the piece number
    `wid + 32·n < 500` of the row. -/
def valid (L : grid0.Coords) (n : ℕ) : Prop := n < 15 ∨ (n = 15 ∧ big L)
instance (L : grid0.Coords) (n : ℕ) : Decidable (valid L n) := by unfold valid big; infer_instance

omit [FloatOps F] in
theorem valid_iff (L : grid0.Coords) (n : ℕ) : valid L n ↔ wid L + 32 * n < 500 := by
  have := wid_lt L; unfold valid big; omega

/-- Where piece `n` starts in the row (clamped to the last piece of the row, so that the rectangle is in bounds for
    every `n`; for a valid piece the clamp is idle). -/
abbrev pos (L : grid0.Coords) (n : ℕ) : ℕ := 3200 * min (wid L + 32 * n) 499

omit [FloatOps F] in
theorem pos_valid {L : grid0.Coords} {n : ℕ} (h : valid L n) : pos L n = 6400 * (L 1).val + 3200 * (L 0).val + 102400 * n := by
  have := (valid_iff L n).mp h; unfold pos wid at *; omega

omit [FloatOps F] in
theorem in_inb (L : grid0.Coords) (n : ℕ) : ∀ a, (![0, pos L n] : Fin 2 → ℕ) a + S1x3200.size a ≤ S22x1600000.size a := by
  intro a; fin_cases a
  · show 0 + 1 ≤ 22; omega
  · show pos L n + 3200 ≤ 1600000; unfold pos; omega
omit [FloatOps F] in
theorem out_inb (L : grid0.Coords) (n : ℕ) : ∀ a, (![pos L n] : Fin 1 → ℕ) a + S3200.size a ≤ S1600000.size a := by
  intro a; fin_cases a
  show pos L n + 3200 ≤ 1600000; unfold pos; omega

/-- Piece `n` of row 0 of the transposed argument, and piece `n` of the flat result, as memrefs of the tile. -/
abbrev inM (L : grid0.Coords) (n : ℕ) : Memref sig .scVector .hbm S1x3200 .f32 :=
  (xtW).slice (Rect.unit (s := S22x1600000) ![0, pos L n] S1x3200.size (in_inb L n)) (fun _ => rfl)
abbrev outM (L : grid0.Coords) (n : ℕ) : Memref sig .scVector .hbm S3200 .f32 :=
  (oW).slice (Rect.unit (s := S1600000) ![pos L n] S3200.size (out_inb L n)) (fun _ => rfl)

/-! The program's own slices are these pieces: by the closed forms of its offset functions. -/

omit [FloatOps F] in
theorem off2 {a b : ℕ} (h : a = b) : (![0, a] : Fin 2 → ℕ) = ![0, b] := by rw [h]
omit [FloatOps F] in
theorem off1' {a b : ℕ} (h : a = b) : (![a] : Fin 1 → ℕ) = ![b] := by rw [h]

omit [FloatOps F] in
theorem off_in0 (L : grid0.Coords) (h : valid L 0) : k0_off1 L 0#32 = ![0, pos L 0] :=
  (k0_off1_eq L 0).trans (off2 (by rw [pos_valid h]; simp))
omit [FloatOps F] in
theorem off_in1 (L : grid0.Coords) (h : valid L 1) : k0_off1 L 32#32 = ![0, pos L 1] :=
  (k0_off1_eq L 1).trans (off2 (by rw [pos_valid h]; simp))
omit [FloatOps F] in
theorem off_6 (L : grid0.Coords) (t : Fin k0_t1_loop.trips) (h : valid L (2 * t.val + 2)) : k0_off6 L t = ![0, pos L (2 * t.val + 2)] :=
  (k0_off6_eq L t).trans (off2 (by rw [pos_valid h]; omega))
omit [FloatOps F] in
theorem off_11 (L : grid0.Coords) (t : Fin k0_t1_loop.trips) (h : valid L (2 * t.val + 3)) : k0_off11 L t = ![0, pos L (2 * t.val + 3)] :=
  (k0_off11_eq L t).trans (off2 (by rw [pos_valid h]; omega))
omit [FloatOps F] in
theorem off_5 (L : grid0.Coords) (t : Fin k0_t1_loop.trips) (h : valid L (2 * t.val)) : k0_off5 L t = ![pos L (2 * t.val)] :=
  (k0_off5_eq L t).trans (off1' (by rw [pos_valid h]; omega))
omit [FloatOps F] in
theorem off_10 (L : grid0.Coords) (t : Fin k0_t1_loop.trips) (h : valid L (2 * t.val + 1)) : k0_off10 L t = ![pos L (2 * t.val + 1)] :=
  (k0_off10_eq L t).trans (off1' (by rw [pos_valid h]; omega))

/-- Holding a 1 × 3200 window of the transposed argument, or a 3200 window of the result, by exactly its elements
    says the same whichever way the window's offsets are spelt. -/
theorem in_congr {off off' : Fin 2 → ℕ} (h : off = off') (p : ∀ a, off a + S1x3200.size a ≤ S22x1600000.size a)
    (p' : ∀ a, off' a + S1x3200.size a ≤ S22x1600000.size a) (f : Buf (Elt F) ((xtW).view.loc (thr d L))) :
    (((xtW).slice (Rect.unit (s := S22x1600000) off S1x3200.size p) (fun _ => rfl)).view.loc (thr d L)
        ↦[((xtW).slice (Rect.unit (s := S22x1600000) off S1x3200.size p) (fun _ => rfl)).view.set]{fullShare} f : sProp 𝕄)
      = (((xtW).slice (Rect.unit (s := S22x1600000) off' S1x3200.size p') (fun _ => rfl)).view.loc (thr d L)
        ↦[((xtW).slice (Rect.unit (s := S22x1600000) off' S1x3200.size p') (fun _ => rfl)).view.set]{fullShare} f) := by
  subst h; rfl
theorem out_congr {off off' : Fin 1 → ℕ} (h : off = off') (p : ∀ a, off a + S3200.size a ≤ S1600000.size a)
    (p' : ∀ a, off' a + S3200.size a ≤ S1600000.size a) (f : Buf (Elt F) ((oW).view.loc (thr d L))) :
    (((oW).slice (Rect.unit (s := S1600000) off S3200.size p) (fun _ => rfl)).view.loc (thr d L)
        ↦[((oW).slice (Rect.unit (s := S1600000) off S3200.size p) (fun _ => rfl)).view.set]{fullShare} f : sProp 𝕄)
      = (((oW).slice (Rect.unit (s := S1600000) off' S3200.size p') (fun _ => rfl)).view.loc (thr d L)
        ↦[((oW).slice (Rect.unit (s := S1600000) off' S3200.size p') (fun _ => rfl)).view.set]{fullShare} f) := by
  subst h; rfl

/-! The printed conditions, as facts about the trip and the tile. -/

omit [FloatOps F] in
theorem trips1 : k0_t1_loop.trips = 8 := by decide
omit [FloatOps F] in
theorem cond1_iff : ∀ (t : Fin k0_t1_loop.trips), k0_cond1 t = 1#1 ↔ 1 ≤ t.val := by decide +kernel
omit [FloatOps F] in
theorem cond2_iff : ∀ (L : grid0.Coords) (t : Fin k0_t1_loop.trips), k0_cond2 L t = 1#1 := by decide +kernel
omit [FloatOps F] in
theorem cond3_iff : ∀ (L : grid0.Coords) (t : Fin k0_t1_loop.trips), k0_cond3 L t = 1#1 ↔ t.val ≤ 6 := by decide +kernel
omit [FloatOps F] in
theorem cond4_iff : ∀ (t : Fin k0_t1_loop.trips), k0_cond4 t = 1#1 ↔ 1 ≤ t.val := by decide +kernel
omit [FloatOps F] in
theorem cond5_iff : ∀ (L : grid0.Coords) (t : Fin k0_t1_loop.trips), k0_cond5 L t = 1#1 ↔ (t.val ≤ 6 ∨ big L) := by decide +kernel
omit [FloatOps F] in
theorem cond6_iff : ∀ (L : grid0.Coords) (t : Fin k0_t1_loop.trips), k0_cond6 L t = 1#1 ↔ (t.val ≤ 5 ∨ (t.val = 6 ∧ big L)) := by decide +kernel
omit [FloatOps F] in
theorem cond7_iff : ∀ (L : grid0.Coords), k0_cond7 L = 1#1 := by decide +kernel
omit [FloatOps F] in
theorem cond8_iff : ∀ (L : grid0.Coords), k0_cond8 L = 1#1 ↔ big L := by decide +kernel

variable (O : CellTallies nD τ sig (HIx 22)) (W : Waits sig (HIx 22))
variable (fx : Buf (Elt F) ((xtW).view.loc (thr d L)))

abbrev NN : ℕ := 102400

/-- The 3200-element window of a flat staging buffer that a piece is written out from. -/
abbrev stg (a : Memref sig .scVector .vmem S25600 .f32) : Memref sig .scVector .vmem S3200 .f32 :=
  a.slice (Rect.unit (s := S25600) ![0] S3200.size inb_S25600_S3200_0) (fun _ => rfl)

/-- Piece `n` of the argument row held by exactly its elements, at the argument's contents; piece `n` of the result
    held by exactly its elements, at some contents. -/
abbrev xtPiece (n : ℕ) : sProp 𝕄 := (inM L n).view.loc (thr d L) ↦[(inM L n).view.set]{fullShare} fx
abbrev oPiece (n : ℕ) : sProp 𝕄 := iprop(∃ f, (outM L n).view.loc (thr d L) ↦[(outM L n).view.set]{fullShare} f)

/-- The lane-copy loop of a slot: the staging row keeps its contents, the flat staging buffer holds some contents. -/
def laneInv0 (g4 : Buf (Elt F) ((a4).view.loc (thr d L))) (_ : ℕ) (_ : PUnit) : sProp 𝕄 :=
  iprop(((a4).view.loc (thr d L) ↦{fullShare} g4) ∗ (∃ g, (a6).view.loc (thr d L) ↦{fullShare} g))
def laneInv1 (g5 : Buf (Elt F) ((a5).view.loc (thr d L))) (_ : ℕ) (_ : PUnit) : sProp 𝕄 :=
  iprop(((a5).view.loc (thr d L) ↦{fullShare} g5) ∗ (∃ g, (a7).view.loc (thr d L) ↦{fullShare} g))

/-- A fetch slot before trip work on piece `n`: the piece's fetch in flight (it will hand back the staging row at some
    contents, and the piece), or, when there is no such piece, the slot idle. -/
def inSlot (a : Memref sig .scVector .vmem S8x3200 .f32) (sm : DmaSem sig) (n : ℕ) : sProp 𝕄 :=
  if valid L n then
    iprop(∃ g, Transfers.Flight countersEmb (thr d L) (SemLoc.dma sm) (default : HIx 22) NN
      iprop((a.view.loc (thr d L) ↦{fullShare} g) ∗ xtPiece d L fx n))
  else iprop((∃ g, a.view.loc (thr d L) ↦{fullShare} g) ∗ semVal (thr d L, SemLoc.dma sm) 0)

/-- A write-out slot before trip work on piece `m`: piece `m - 2`'s write-out in flight (it will hand back that piece
    of the result at some contents, and the staging window), the rest of the staging buffer beside it; or idle. -/
def outSlot (a : Memref sig .scVector .vmem S25600 .f32) (sm : DmaSem sig) (m : ℕ) : sProp 𝕄 :=
  if 2 ≤ m ∧ valid L (m - 2) then
    iprop(∃ g, Transfers.Flight countersEmb (thr d L) (SemLoc.dma sm) (default : HIx 22) NN
        iprop(oPiece d L (m - 2) ∗ ((stg a).view.loc (thr d L) ↦[(stg a).view.set]{fullShare} g))
      ∗ (a.view.loc (thr d L) ↦[Finset.univ \ (stg a).view.set]{fullShare} g))
  else iprop((∃ g, a.view.loc (thr d L) ↦{fullShare} g) ∗ semVal (thr d L, SemLoc.dma sm) 0)

/-- Piece `n` when it exists, nothing otherwise. -/
def xP (n : ℕ) : sProp 𝕄 := if valid L n then xtPiece d L fx n else iprop(emp)
def oP (n : ℕ) : sProp 𝕄 := if valid L n then oPiece d L n else iprop(emp)

/-- What the tile holds outside the slots before trip `t`: every piece of the argument row but those being fetched
    (`2t`, `2t + 1`), every piece of the result but those being written out (`2t - 2`, `2t - 1`). -/
def xSet (t : ℕ) : Finset ℕ := (Finset.range 18).filter fun n => n ≠ 2 * t ∧ n ≠ 2 * t + 1
def oSet (t : ℕ) : Finset ℕ := (Finset.range 18).filter fun n => n + 2 ≠ 2 * t ∧ n + 2 ≠ 2 * t + 1

def inv (t : ℕ) (_ : PUnit) : sProp 𝕄 :=
  iprop(Transfers.MayWaits (thr d L) (none : HIx 22) O
    ∗ (∃ W', ⌜∀ p ∈ W', p ∈ W ∨ p.2 = none⌝ ∗ owes (thr d L) O W')
    ∗ bigSep (xSet t) (xP d L fx) ∗ bigSep (oSet t) (oP d L)
    ∗ inSlot d L fx a4 cc0_scratch4.sem (2 * t) ∗ outSlot d L a6 cc0_scratch6.sem (2 * t)
    ∗ inSlot d L fx a5 cc0_scratch5.sem (2 * t + 1) ∗ outSlot d L a7 cc0_scratch7.sem (2 * t + 1))

omit [FloatOps F] in
theorem two_out {Φ : ℕ → sProp 𝕄} {s : Finset ℕ} {a b : ℕ} (ha : a ∈ s) (hb : b ∈ s) (hab : a ≠ b) :
    bigSep s Φ = iprop(Φ a ∗ Φ b ∗ bigSep ((s.erase a).erase b) Φ) := by
  rw [SparseCore.bigSep_erase' ha, SparseCore.bigSep_erase' (Finset.mem_erase.mpr ⟨fun e => hab e.symm, hb⟩)]

omit [FloatOps F] in
theorem range18_split : (Finset.range 18) = insert 0 (insert 1 (xSet 0)) := by decide

theorem xRange_split (v0 : valid L 0) (v1 : valid L 1) :
    bigSep (Finset.range 18) (xP d L fx) = iprop(xtPiece d L fx 0 ∗ xtPiece d L fx 1 ∗ bigSep (xSet 0) (xP d L fx)) := by
  rw [range18_split, SparseCore.bigSep_insert' (by decide), SparseCore.bigSep_insert' (by decide)]
  unfold xP; rw [if_pos v0, if_pos v1]
omit [FloatOps F] in
theorem oSet_zero : oSet 0 = Finset.range 18 := by decide

theorem inSlot_pos {a : Memref sig .scVector .vmem S8x3200 .f32} {sm : DmaSem sig} {n : ℕ} (v : valid L n) :
    inSlot d L fx a sm n = iprop(∃ g, Transfers.Flight countersEmb (thr d L) (SemLoc.dma sm) (default : HIx 22) NN
      iprop((a.view.loc (thr d L) ↦{fullShare} g) ∗ xtPiece d L fx n)) := by unfold inSlot; rw [if_pos v]
theorem inSlot_neg {a : Memref sig .scVector .vmem S8x3200 .f32} {sm : DmaSem sig} {n : ℕ} (v : ¬ valid L n) :
    inSlot d L fx a sm n = iprop((∃ g, a.view.loc (thr d L) ↦{fullShare} g) ∗ semVal (thr d L, SemLoc.dma sm) 0) := by
  unfold inSlot; rw [if_neg v]
theorem outSlot_pos {a : Memref sig .scVector .vmem S25600 .f32} {sm : DmaSem sig} {m : ℕ} (h : 2 ≤ m ∧ valid L (m - 2)) :
    outSlot (F := F) d L a sm m = iprop(∃ g, Transfers.Flight countersEmb (thr d L) (SemLoc.dma sm) (default : HIx 22) NN
        iprop(oPiece (F := F) d L (m - 2) ∗ ((stg a).view.loc (thr d L) ↦[(stg a).view.set]{fullShare} g))
      ∗ (a.view.loc (thr d L) ↦[Finset.univ \ (stg a).view.set]{fullShare} g)) := by unfold outSlot; rw [if_pos h]
theorem outSlot_neg {a : Memref sig .scVector .vmem S25600 .f32} {sm : DmaSem sig} {m : ℕ} (h : ¬ (2 ≤ m ∧ valid L (m - 2))) :
    outSlot (F := F) d L a sm m = iprop((∃ g, a.view.loc (thr d L) ↦{fullShare} g) ∗ semVal (thr d L, SemLoc.dma sm) 0) := by
  unfold outSlot; rw [if_neg h]

/-- A fetch in flight, its source window spelt by any offsets equal to piece `n`'s, fills the fetch slot for `n`. -/
theorem fl_in {off : Fin 2 → ℕ} {n : ℕ} (h : off = ![0, pos L n]) (p : ∀ a, off a + S1x3200.size a ≤ S22x1600000.size a) (v : valid L n)
    (a : Memref sig .scVector .vmem S8x3200 .f32) (sm : DmaSem sig) :
    (iprop(∃ g, Transfers.Flight countersEmb (thr d L) (SemLoc.dma sm) (default : HIx 22) NN
        iprop((a.view.loc (thr d L) ↦{fullShare} g)
          ∗ (((xtW).slice (Rect.unit (s := S22x1600000) off S1x3200.size p) (fun _ => rfl)).view.loc (thr d L)
              ↦[((xtW).slice (Rect.unit (s := S22x1600000) off S1x3200.size p) (fun _ => rfl)).view.set]{fullShare} fx))) : sProp 𝕄)
      ⊢ inSlot d L fx a sm n := by
  rw [inSlot_pos d L fx v]
  iintro ⟨%g, H⟩
  have hD : (iprop((a.view.loc (thr d L) ↦{fullShare} g)
          ∗ (((xtW).slice (Rect.unit (s := S22x1600000) off S1x3200.size p) (fun _ => rfl)).view.loc (thr d L)
              ↦[((xtW).slice (Rect.unit (s := S22x1600000) off S1x3200.size p) (fun _ => rfl)).view.set]{fullShare} fx)) : sProp 𝕄)
      ⊢ iprop((a.view.loc (thr d L) ↦{fullShare} g) ∗ xtPiece d L fx n) := by
    iintro ⟨H1, H2⟩
    isplitl [H1]; · iexact H1
    iapply (Entails.of_eq (in_congr d L h p (in_inb L n) fx)); iexact H2
  iexists g
  iapply (Transfers.Flight_mono countersEmb (thr d L) hD); iexact H

/-- A write-out in flight, its destination window spelt by any offsets equal to piece `n`'s, with the rest of the
    staging buffer, fills the write-out slot for `n + 2`. -/
theorem fl_out {off : Fin 1 → ℕ} {n : ℕ} (h : off = ![pos L n]) (p : ∀ a, off a + S3200.size a ≤ S1600000.size a) (v : valid L n)
    (a : Memref sig .scVector .vmem S25600 .f32) (sm : DmaSem sig) :
    (iprop(∃ (f : Buf (Elt F) ((oW).view.loc (thr d L))) (g : Buf (Elt F) (a.view.loc (thr d L))), Transfers.Flight countersEmb (thr d L) (SemLoc.dma sm) (default : HIx 22) NN
        iprop((((oW).slice (Rect.unit (s := S1600000) off S3200.size p) (fun _ => rfl)).view.loc (thr d L)
              ↦[((oW).slice (Rect.unit (s := S1600000) off S3200.size p) (fun _ => rfl)).view.set]{fullShare} f)
          ∗ ((stg a).view.loc (thr d L) ↦[(stg a).view.set]{fullShare} g))
        ∗ (a.view.loc (thr d L) ↦[Finset.univ \ (stg a).view.set]{fullShare} g)) : sProp 𝕄)
      ⊢ outSlot (F := F) d L a sm (n + 2) := by
  rw [outSlot_pos (F := F) d L (m := n + 2) ⟨by omega, by simpa using v⟩]
  iintro ⟨%f, %g, H, R⟩
  have hD : (iprop((((oW).slice (Rect.unit (s := S1600000) off S3200.size p) (fun _ => rfl)).view.loc (thr d L)
              ↦[((oW).slice (Rect.unit (s := S1600000) off S3200.size p) (fun _ => rfl)).view.set]{fullShare} f)
          ∗ ((stg a).view.loc (thr d L) ↦[(stg a).view.set]{fullShare} g)) : sProp 𝕄)
      ⊢ iprop(oPiece (F := F) d L (n + 2 - 2) ∗ ((stg a).view.loc (thr d L) ↦[(stg a).view.set]{fullShare} g)) := by
    rw [Nat.add_sub_cancel]
    iintro ⟨H1, H2⟩
    isplitl [H1]
    · iexists f; iapply (Entails.of_eq (out_congr d L h p (out_inb L n) f)); iexact H1
    · iexact H2
  iexists g
  isplitl [H]
  · iapply (Transfers.Flight_mono countersEmb (thr d L) hD); iexact H
  · iexact R

/-! The pieces outside the slots, from one trip to the next. -/
def xCore (k : ℕ) : Finset ℕ := (Finset.range 18).filter fun n => n ≠ 2 * k ∧ n ≠ 2 * k + 1 ∧ n ≠ 2 * k + 2 ∧ n ≠ 2 * k + 3
def oCore (k : ℕ) : Finset ℕ := (Finset.range 18).filter fun n => n + 2 ≠ 2 * k ∧ n + 2 ≠ 2 * k + 1 ∧ n ≠ 2 * k ∧ n ≠ 2 * k + 1

omit [FloatOps F] in
theorem xSet_out (Φ : ℕ → sProp 𝕄) (k : ℕ) (hk : k < 8) : bigSep (xSet k) Φ = iprop(Φ (2 * k + 2) ∗ Φ (2 * k + 3) ∗ bigSep (xCore k) Φ) := by
  have e : ((xSet k).erase (2 * k + 2)).erase (2 * k + 3) = xCore k := by
    ext n; simp only [xSet, xCore, Finset.mem_erase, Finset.mem_filter, Finset.mem_range]; omega
  rw [← e]; exact two_out (by simp only [xSet, Finset.mem_filter, Finset.mem_range]; omega) (by simp only [xSet, Finset.mem_filter, Finset.mem_range]; omega) (by omega)
omit [FloatOps F] in
theorem xSet_in (Φ : ℕ → sProp 𝕄) (k : ℕ) (hk : k < 8) : bigSep (xSet (k + 1)) Φ = iprop(Φ (2 * k) ∗ Φ (2 * k + 1) ∗ bigSep (xCore k) Φ) := by
  have e : ((xSet (k + 1)).erase (2 * k)).erase (2 * k + 1) = xCore k := by
    ext n; simp only [xSet, xCore, Finset.mem_erase, Finset.mem_filter, Finset.mem_range]; omega
  rw [← e]; exact two_out (by simp only [xSet, Finset.mem_filter, Finset.mem_range]; omega) (by simp only [xSet, Finset.mem_filter, Finset.mem_range]; omega) (by omega)
omit [FloatOps F] in
theorem oSet_out (Φ : ℕ → sProp 𝕄) (k : ℕ) (hk : k < 8) : bigSep (oSet k) Φ = iprop(Φ (2 * k) ∗ Φ (2 * k + 1) ∗ bigSep (oCore k) Φ) := by
  have e : ((oSet k).erase (2 * k)).erase (2 * k + 1) = oCore k := by
    ext n; simp only [oSet, oCore, Finset.mem_erase, Finset.mem_filter, Finset.mem_range]; omega
  rw [← e]; exact two_out (by simp only [oSet, Finset.mem_filter, Finset.mem_range]; omega) (by simp only [oSet, Finset.mem_filter, Finset.mem_range]; omega) (by omega)
omit [FloatOps F] in
theorem oSet_in (Φ : ℕ → sProp 𝕄) (k : ℕ) (hk : k < 8) (hk1 : 1 ≤ k) :
    bigSep (oSet (k + 1)) Φ = iprop(Φ (2 * k - 2) ∗ Φ (2 * k - 1) ∗ bigSep (oCore k) Φ) := by
  have e : ((oSet (k + 1)).erase (2 * k - 2)).erase (2 * k - 1) = oCore k := by
    ext n; simp only [oSet, oCore, Finset.mem_erase, Finset.mem_filter, Finset.mem_range]; omega
  rw [← e]; exact two_out (by simp only [oSet, Finset.mem_filter, Finset.mem_range]; omega) (by simp only [oSet, Finset.mem_filter, Finset.mem_range]; omega) (by omega)

theorem xP_pos {n : ℕ} (v : valid L n) : xP d L fx n = xtPiece d L fx n := if_pos v
theorem oP_pos {n : ℕ} (v : valid L n) : oP (F := F) d L n = oPiece (F := F) d L n := if_pos v
theorem xP_neg {n : ℕ} (v : ¬ valid L n) : xP d L fx n = iprop(emp) := if_neg v
theorem oP_neg {n : ℕ} (v : ¬ valid L n) : oP (F := F) d L n = iprop(emp) := if_neg v

/-- Piece `n` of the result at its final contents: row 0 of the transposed argument. -/
def oQ (n : ℕ) : sProp 𝕄 :=
  if valid L n then (outM L n).view.loc (thr d L) ↦[(outM L n).view.set]{fullShare} (Cert.Spec.row 0 fx) else iprop(emp)

/-- What a tile is handed for the call: its pieces of row 0 of the transposed argument, at the argument's contents, and
    its pieces of the result at some contents. What it hands back: the same pieces of the argument, and its pieces of
    the result holding the row. -/
def goRes : sProp 𝕄 := iprop(bigSep (Finset.range 18) (xP d L fx) ∗ bigSep (Finset.range 18) (oP (F := F) d L))
def tdRes : sProp 𝕄 := iprop(bigSep (Finset.range 18) (xP d L fx) ∗ bigSep (Finset.range 18) (oQ d L fx))

end Tile

end Cert.Proof.TileK0

end
-- ==== Proof.TileK1Defs.lean ====
/-
  One vector subcore's task of copy kernel 1 (counting from 0): definitions. The task moves its pieces of row 1 of the
  transposed argument (pieces of 3200 consecutive elements, piece number 2·s + c + 32·n for the subcore (c, s) and
  n = 0, 1, … while that number is below 500) into the flat result: each piece is fetched into a staging row, copied
  16 lanes at a time into a flat staging buffer, and written out, two pieces in flight at a time. Here: the pieces as
  memrefs, the program's own spellings of them, the printed conditions as facts about the trip, the two slots' states
  between trips, and what the tile holds outside the slots.
-/
import proofs.«206869_g37898791420194_cont_8to1_b_558_20_alg».proof.Defs
import Idealize.ShloMosaic.Lib.SparseCore.Launch
import Idealize.ShloMosaic.Lib.StableHlo.Run
import Idealize.ShloMosaic.Lib.Pipeline.Kit
import Idealize.ShloMosaic.Lib.Tactic
import proofs.«206869_g37898791420194_cont_8to1_b_558_20_alg».proof.Proof.Gen.KernelIdeal
import proofs.«206869_g37898791420194_cont_8to1_b_558_20_alg».proof.Proof.Gen.KernelIdeal.Skeleton
import proofs.«206869_g37898791420194_cont_8to1_b_558_20_alg».proof.Proof.Spec

noncomputable section

namespace Cert.Proof.TileK1

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

abbrev ΛP : Labels := Pipeline.Sig Λ₀ (Fin 0) fun p => (pcfgs (F := F) p).Adm
abbrev K : SparseCore.Cfg τ sig (ΛP (F := F)) 22 := sc (F := F)
abbrev 𝒱₀ : Variants := Variants.none

abbrev UH : Type := URounds (GSem nD τ sig) ℕ
abbrev UU : Type := UH × Counters

local notation "𝕄" => MT nD τ sig (HIx 22) (Elt F) ℕ UU ℕ

local notation "xtW" => (Memref.whole Cert.KernelIdeal.main_v0_scv : Memref Cert.KernelIdeal.sig Kind.scVector Space.hbm Cert.KernelIdeal.S22x1600000 EltTy.f32)
local notation "oW" => (Memref.whole Cert.KernelIdeal.main_v2_scv : Memref Cert.KernelIdeal.sig Kind.scVector Space.hbm Cert.KernelIdeal.S1600000 EltTy.f32)
local notation "a4" => (Memref.whole Cert.KernelIdeal.cc1_scratch0 : Memref Cert.KernelIdeal.sig Kind.scVector Space.vmem Cert.KernelIdeal.S8x3200 EltTy.f32)
local notation "a5" => (Memref.whole Cert.KernelIdeal.cc1_scratch1 : Memref Cert.KernelIdeal.sig Kind.scVector Space.vmem Cert.KernelIdeal.S8x3200 EltTy.f32)
local notation "a6" => (Memref.whole Cert.KernelIdeal.cc1_scratch2 : Memref Cert.KernelIdeal.sig Kind.scVector Space.vmem Cert.KernelIdeal.S25600 EltTy.f32)
local notation "a7" => (Memref.whole Cert.KernelIdeal.cc1_scratch3 : Memref Cert.KernelIdeal.sig Kind.scVector Space.vmem Cert.KernelIdeal.S25600 EltTy.f32)

variable [FloatOps F]

section Tile

variable (d : Dev nD) (L : grid1.Coords)

abbrev cV (L : grid1.Coords) : Fin τ.nSC := (L 0).castLE hcore1
abbrev jV (L : grid1.Coords) : Fin τ.nSub := (L 1).castLE hsub1
abbrev thr (d : Dev nD) (L : grid1.Coords) : Thread nD τ := V d (cV L) (jV L)

/-- The tile's number 2·s + c, and whether it has sixteen pieces (numbers below 20) or fifteen. -/
abbrev wid (L : grid1.Coords) : ℕ := 2 * (L 1).val + (L 0).val
abbrev big (L : grid1.Coords) : Prop := wid L < 20

omit [FloatOps F] in
theorem wid_lt (L : grid1.Coords) : wid L < 32 := by
  have h0 : (L 0).val < 2 := (L 0).isLt
  have h1 : (L 1).val < 16 := (L 1).isLt
  unfold wid; omega

/-- Piece `n` of the tile exists: `n < 15`, or `n = 15` on a tile with sixteen pieces. It is the piece number
    `wid + 32·n < 500` of the row. -/
def valid (L : grid1.Coords) (n : ℕ) : Prop := n < 15 ∨ (n = 15 ∧ big L)
instance (L : grid1.Coords) (n : ℕ) : Decidable (valid L n) := by unfold valid big; infer_instance

omit [FloatOps F] in
theorem valid_iff (L : grid1.Coords) (n : ℕ) : valid L n ↔ wid L + 32 * n < 500 := by
  have := wid_lt L; unfold valid big; omega

/-- Where piece `n` starts in the row (clamped to the last piece of the row, so that the rectangle is in bounds for
    every `n`; for a valid piece the clamp is idle). -/
abbrev pos (L : grid1.Coords) (n : ℕ) : ℕ := 3200 * min (wid L + 32 * n) 499

omit [FloatOps F] in
theorem pos_valid {L : grid1.Coords} {n : ℕ} (h : valid L n) : pos L n = 6400 * (L 1).val + 3200 * (L 0).val + 102400 * n := by
  have := (valid_iff L n).mp h; unfold pos wid at *; omega

omit [FloatOps F] in
theorem in_inb (L : grid1.Coords) (n : ℕ) : ∀ a, (![1, pos L n] : Fin 2 → ℕ) a + S1x3200.size a ≤ S22x1600000.size a := by
  intro a; fin_cases a
  · show 1 + 1 ≤ 22; omega
  · show pos L n + 3200 ≤ 1600000; unfold pos; omega
omit [FloatOps F] in
theorem out_inb (L : grid1.Coords) (n : ℕ) : ∀ a, (![pos L n] : Fin 1 → ℕ) a + S3200.size a ≤ S1600000.size a := by
  intro a; fin_cases a
  show pos L n + 3200 ≤ 1600000; unfold pos; omega

/-- Piece `n` of row 1 of the transposed argument, and piece `n` of the flat result, as memrefs of the tile. -/
abbrev inM (L : grid1.Coords) (n : ℕ) : Memref sig .scVector .hbm S1x3200 .f32 :=
  (xtW).slice (Rect.unit (s := S22x1600000) ![1, pos L n] S1x3200.size (in_inb L n)) (fun _ => rfl)
abbrev outM (L : grid1.Coords) (n : ℕ) : Memref sig .scVector .hbm S3200 .f32 :=
  (oW).slice (Rect.unit (s := S1600000) ![pos L n] S3200.size (out_inb L n)) (fun _ => rfl)

/-! The program's own slices are these pieces: by the closed forms of its offset functions. -/

omit [FloatOps F] in
theorem off2 {a b : ℕ} (h : a = b) : (![1, a] : Fin 2 → ℕ) = ![1, b] := by rw [h]
omit [FloatOps F] in
theorem off1' {a b : ℕ} (h : a = b) : (![a] : Fin 1 → ℕ) = ![b] := by rw [h]

omit [FloatOps F] in
theorem off_in0 (L : grid1.Coords) (h : valid L 0) : k1_off1 L 0#32 = ![1, pos L 0] :=
  (k1_off1_eq L 0).trans (off2 (by rw [pos_valid h]; simp))
omit [FloatOps F] in
theorem off_in1 (L : grid1.Coords) (h : valid L 1) : k1_off1 L 32#32 = ![1, pos L 1] :=
  (k1_off1_eq L 1).trans (off2 (by rw [pos_valid h]; simp))
omit [FloatOps F] in
theorem off_6 (L : grid1.Coords) (t : Fin k1_t1_loop.trips) (h : valid L (2 * t.val + 2)) : k1_off6 L t = ![1, pos L (2 * t.val + 2)] :=
  (k1_off6_eq L t).trans (off2 (by rw [pos_valid h]; omega))
omit [FloatOps F] in
theorem off_11 (L : grid1.Coords) (t : Fin k1_t1_loop.trips) (h : valid L (2 * t.val + 3)) : k1_off11 L t = ![1, pos L (2 * t.val + 3)] :=
  (k1_off11_eq L t).trans (off2 (by rw [pos_valid h]; omega))
omit [FloatOps F] in
theorem off_5 (L : grid1.Coords) (t : Fin k1_t1_loop.trips) (h : valid L (2 * t.val)) : k1_off5 L t = ![pos L (2 * t.val)] :=
  (k1_off5_eq L t).trans (off1' (by rw [pos_valid h]; omega))
omit [FloatOps F] in
theorem off_10 (L : grid1.Coords) (t : Fin k1_t1_loop.trips) (h : valid L (2 * t.val + 1)) : k1_off10 L t = ![pos L (2 * t.val + 1)] :=
  (k1_off10_eq L t).trans (off1' (by rw [pos_valid h]; omega))

/-- Holding a 1 × 3200 window of the transposed argument, or a 3200 window of the result, by exactly its elements
    says the same whichever way the window's offsets are spelt. -/
theorem in_congr {off off' : Fin 2 → ℕ} (h : off = off') (p : ∀ a, off a + S1x3200.size a ≤ S22x1600000.size a)
    (p' : ∀ a, off' a + S1x3200.size a ≤ S22x1600000.size a) (f : Buf (Elt F) ((xtW).view.loc (thr d L))) :
    (((xtW).slice (Rect.unit (s := S22x1600000) off S1x3200.size p) (fun _ => rfl)).view.loc (thr d L)
        ↦[((xtW).slice (Rect.unit (s := S22x1600000) off S1x3200.size p) (fun _ => rfl)).view.set]{fullShare} f : sProp 𝕄)
      = (((xtW).slice (Rect.unit (s := S22x1600000) off' S1x3200.size p') (fun _ => rfl)).view.loc (thr d L)
        ↦[((xtW).slice (Rect.unit (s := S22x1600000) off' S1x3200.size p') (fun _ => rfl)).view.set]{fullShare} f) := by
  subst h; rfl
theorem out_congr {off off' : Fin 1 → ℕ} (h : off = off') (p : ∀ a, off a + S3200.size a ≤ S1600000.size a)
    (p' : ∀ a, off' a + S3200.size a ≤ S1600000.size a) (f : Buf (Elt F) ((oW).view.loc (thr d L))) :
    (((oW).slice (Rect.unit (s := S1600000) off S3200.size p) (fun _ => rfl)).view.loc (thr d L)
        ↦[((oW).slice (Rect.unit (s := S1600000) off S3200.size p) (fun _ => rfl)).view.set]{fullShare} f : sProp 𝕄)
      = (((oW).slice (Rect.unit (s := S1600000) off' S3200.size p') (fun _ => rfl)).view.loc (thr d L)
        ↦[((oW).slice (Rect.unit (s := S1600000) off' S3200.size p') (fun _ => rfl)).view.set]{fullShare} f) := by
  subst h; rfl

/-! The printed conditions, as facts about the trip and the tile. -/

omit [FloatOps F] in
theorem trips1 : k1_t1_loop.trips = 8 := by decide
omit [FloatOps F] in
theorem cond1_iff : ∀ (t : Fin k1_t1_loop.trips), k1_cond1 t = 1#1 ↔ 1 ≤ t.val := by decide +kernel
omit [FloatOps F] in
theorem cond2_iff : ∀ (L : grid1.Coords) (t : Fin k1_t1_loop.trips), k1_cond2 L t = 1#1 := by decide +kernel
omit [FloatOps F] in
theorem cond3_iff : ∀ (L : grid1.Coords) (t : Fin k1_t1_loop.trips), k1_cond3 L t = 1#1 ↔ t.val ≤ 6 := by decide +kernel
omit [FloatOps F] in
theorem cond4_iff : ∀ (t : Fin k1_t1_loop.trips), k1_cond4 t = 1#1 ↔ 1 ≤ t.val := by decide +kernel
omit [FloatOps F] in
theorem cond5_iff : ∀ (L : grid1.Coords) (t : Fin k1_t1_loop.trips), k1_cond5 L t = 1#1 ↔ (t.val ≤ 6 ∨ big L) := by decide +kernel
omit [FloatOps F] in
theorem cond6_iff : ∀ (L : grid1.Coords) (t : Fin k1_t1_loop.trips), k1_cond6 L t = 1#1 ↔ (t.val ≤ 5 ∨ (t.val = 6 ∧ big L)) := by decide +kernel
omit [FloatOps F] in
theorem cond7_iff : ∀ (L : grid1.Coords), k1_cond7 L = 1#1 := by decide +kernel
omit [FloatOps F] in
theorem cond8_iff : ∀ (L : grid1.Coords), k1_cond8 L = 1#1 ↔ big L := by decide +kernel

variable (O : CellTallies nD τ sig (HIx 22)) (W : Waits sig (HIx 22))
variable (fx : Buf (Elt F) ((xtW).view.loc (thr d L)))

abbrev NN : ℕ := 102400

/-- The 3200-element window of a flat staging buffer that a piece is written out from. -/
abbrev stg (a : Memref sig .scVector .vmem S25600 .f32) : Memref sig .scVector .vmem S3200 .f32 :=
  a.slice (Rect.unit (s := S25600) ![0] S3200.size inb_S25600_S3200_0) (fun _ => rfl)

/-- Piece `n` of the argument row held by exactly its elements, at the argument's contents; piece `n` of the result
    held by exactly its elements, at some contents. -/
abbrev xtPiece (n : ℕ) : sProp 𝕄 := (inM L n).view.loc (thr d L) ↦[(inM L n).view.set]{fullShare} fx
abbrev oPiece (n : ℕ) : sProp 𝕄 := iprop(∃ f, (outM L n).view.loc (thr d L) ↦[(outM L n).view.set]{fullShare} f)

/-- The lane-copy loop of a slot: the staging row keeps its contents, the flat staging buffer holds some contents. -/
def laneInv0 (g4 : Buf (Elt F) ((a4).view.loc (thr d L))) (_ : ℕ) (_ : PUnit) : sProp 𝕄 :=
  iprop(((a4).view.loc (thr d L) ↦{fullShare} g4) ∗ (∃ g, (a6).view.loc (thr d L) ↦{fullShare} g))
def laneInv1 (g5 : Buf (Elt F) ((a5).view.loc (thr d L))) (_ : ℕ) (_ : PUnit) : sProp 𝕄 :=
  iprop(((a5).view.loc (thr d L) ↦{fullShare} g5) ∗ (∃ g, (a7).view.loc (thr d L) ↦{fullShare} g))

/-- A fetch slot before trip work on piece `n`: the piece's fetch in flight (it will hand back the staging row at some
    contents, and the piece), or, when there is no such piece, the slot idle. -/
def inSlot (a : Memref sig .scVector .vmem S8x3200 .f32) (sm : DmaSem sig) (n : ℕ) : sProp 𝕄 :=
  if valid L n then
    iprop(∃ g, Transfers.Flight countersEmb (thr d L) (SemLoc.dma sm) (default : HIx 22) NN
      iprop((a.view.loc (thr d L) ↦{fullShare} g) ∗ xtPiece d L fx n))
  else iprop((∃ g, a.view.loc (thr d L) ↦{fullShare} g) ∗ semVal (thr d L, SemLoc.dma sm) 0)

/-- A write-out slot before trip work on piece `m`: piece `m - 2`'s write-out in flight (it will hand back that piece
    of the result at some contents, and the staging window), the rest of the staging buffer beside it; or idle. -/
def outSlot (a : Memref sig .scVector .vmem S25600 .f32) (sm : DmaSem sig) (m : ℕ) : sProp 𝕄 :=
  if 2 ≤ m ∧ valid L (m - 2) then
    iprop(∃ g, Transfers.Flight countersEmb (thr d L) (SemLoc.dma sm) (default : HIx 22) NN
        iprop(oPiece d L (m - 2) ∗ ((stg a).view.loc (thr d L) ↦[(stg a).view.set]{fullShare} g))
      ∗ (a.view.loc (thr d L) ↦[Finset.univ \ (stg a).view.set]{fullShare} g))
  else iprop((∃ g, a.view.loc (thr d L) ↦{fullShare} g) ∗ semVal (thr d L, SemLoc.dma sm) 0)

/-- Piece `n` when it exists, nothing otherwise. -/
def xP (n : ℕ) : sProp 𝕄 := if valid L n then xtPiece d L fx n else iprop(emp)
def oP (n : ℕ) : sProp 𝕄 := if valid L n then oPiece d L n else iprop(emp)

/-- What the tile holds outside the slots before trip `t`: every piece of the argument row but those being fetched
    (`2t`, `2t + 1`), every piece of the result but those being written out (`2t - 2`, `2t - 1`). -/
def xSet (t : ℕ) : Finset ℕ := (Finset.range 18).filter fun n => n ≠ 2 * t ∧ n ≠ 2 * t + 1
def oSet (t : ℕ) : Finset ℕ := (Finset.range 18).filter fun n => n + 2 ≠ 2 * t ∧ n + 2 ≠ 2 * t + 1

def inv (t : ℕ) (_ : PUnit) : sProp 𝕄 :=
  iprop(Transfers.MayWaits (thr d L) (none : HIx 22) O
    ∗ (∃ W', ⌜∀ p ∈ W', p ∈ W ∨ p.2 = none⌝ ∗ owes (thr d L) O W')
    ∗ bigSep (xSet t) (xP d L fx) ∗ bigSep (oSet t) (oP d L)
    ∗ inSlot d L fx a4 cc1_scratch4.sem (2 * t) ∗ outSlot d L a6 cc1_scratch6.sem (2 * t)
    ∗ inSlot d L fx a5 cc1_scratch5.sem (2 * t + 1) ∗ outSlot d L a7 cc1_scratch7.sem (2 * t + 1))

omit [FloatOps F] in
theorem two_out {Φ : ℕ → sProp 𝕄} {s : Finset ℕ} {a b : ℕ} (ha : a ∈ s) (hb : b ∈ s) (hab : a ≠ b) :
    bigSep s Φ = iprop(Φ a ∗ Φ b ∗ bigSep ((s.erase a).erase b) Φ) := by
  rw [SparseCore.bigSep_erase' ha, SparseCore.bigSep_erase' (Finset.mem_erase.mpr ⟨fun e => hab e.symm, hb⟩)]

omit [FloatOps F] in
theorem range18_split : (Finset.range 18) = insert 0 (insert 1 (xSet 0)) := by decide

theorem xRange_split (v0 : valid L 0) (v1 : valid L 1) :
    bigSep (Finset.range 18) (xP d L fx) = iprop(xtPiece d L fx 0 ∗ xtPiece d L fx 1 ∗ bigSep (xSet 0) (xP d L fx)) := by
  rw [range18_split, SparseCore.bigSep_insert' (by decide), SparseCore.bigSep_insert' (by decide)]
  unfold xP; rw [if_pos v0, if_pos v1]
omit [FloatOps F] in
theorem oSet_zero : oSet 0 = Finset.range 18 := by decide

theorem inSlot_pos {a : Memref sig .scVector .vmem S8x3200 .f32} {sm : DmaSem sig} {n : ℕ} (v : valid L n) :
    inSlot d L fx a sm n = iprop(∃ g, Transfers.Flight countersEmb (thr d L) (SemLoc.dma sm) (default : HIx 22) NN
      iprop((a.view.loc (thr d L) ↦{fullShare} g) ∗ xtPiece d L fx n)) := by unfold inSlot; rw [if_pos v]
theorem inSlot_neg {a : Memref sig .scVector .vmem S8x3200 .f32} {sm : DmaSem sig} {n : ℕ} (v : ¬ valid L n) :
    inSlot d L fx a sm n = iprop((∃ g, a.view.loc (thr d L) ↦{fullShare} g) ∗ semVal (thr d L, SemLoc.dma sm) 0) := by
  unfold inSlot; rw [if_neg v]
theorem outSlot_pos {a : Memref sig .scVector .vmem S25600 .f32} {sm : DmaSem sig} {m : ℕ} (h : 2 ≤ m ∧ valid L (m - 2)) :
    outSlot (F := F) d L a sm m = iprop(∃ g, Transfers.Flight countersEmb (thr d L) (SemLoc.dma sm) (default : HIx 22) NN
        iprop(oPiece (F := F) d L (m - 2) ∗ ((stg a).view.loc (thr d L) ↦[(stg a).view.set]{fullShare} g))
      ∗ (a.view.loc (thr d L) ↦[Finset.univ \ (stg a).view.set]{fullShare} g)) := by unfold outSlot; rw [if_pos h]
theorem outSlot_neg {a : Memref sig .scVector .vmem S25600 .f32} {sm : DmaSem sig} {m : ℕ} (h : ¬ (2 ≤ m ∧ valid L (m - 2))) :
    outSlot (F := F) d L a sm m = iprop((∃ g, a.view.loc (thr d L) ↦{fullShare} g) ∗ semVal (thr d L, SemLoc.dma sm) 0) := by
  unfold outSlot; rw [if_neg h]

/-- A fetch in flight, its source window spelt by any offsets equal to piece `n`'s, fills the fetch slot for `n`. -/
theorem fl_in {off : Fin 2 → ℕ} {n : ℕ} (h : off = ![1, pos L n]) (p : ∀ a, off a + S1x3200.size a ≤ S22x1600000.size a) (v : valid L n)
    (a : Memref sig .scVector .vmem S8x3200 .f32) (sm : DmaSem sig) :
    (iprop(∃ g, Transfers.Flight countersEmb (thr d L) (SemLoc.dma sm) (default : HIx 22) NN
        iprop((a.view.loc (thr d L) ↦{fullShare} g)
          ∗ (((xtW).slice (Rect.unit (s := S22x1600000) off S1x3200.size p) (fun _ => rfl)).view.loc (thr d L)
              ↦[((xtW).slice (Rect.unit (s := S22x1600000) off S1x3200.size p) (fun _ => rfl)).view.set]{fullShare} fx))) : sProp 𝕄)
      ⊢ inSlot d L fx a sm n := by
  rw [inSlot_pos d L fx v]
  iintro ⟨%g, H⟩
  have hD : (iprop((a.view.loc (thr d L) ↦{fullShare} g)
          ∗ (((xtW).slice (Rect.unit (s := S22x1600000) off S1x3200.size p) (fun _ => rfl)).view.loc (thr d L)
              ↦[((xtW).slice (Rect.unit (s := S22x1600000) off S1x3200.size p) (fun _ => rfl)).view.set]{fullShare} fx)) : sProp 𝕄)
      ⊢ iprop((a.view.loc (thr d L) ↦{fullShare} g) ∗ xtPiece d L fx n) := by
    iintro ⟨H1, H2⟩
    isplitl [H1]; · iexact H1
    iapply (Entails.of_eq (in_congr d L h p (in_inb L n) fx)); iexact H2
  iexists g
  iapply (Transfers.Flight_mono countersEmb (thr d L) hD); iexact H

/-- A write-out in flight, its destination window spelt by any offsets equal to piece `n`'s, with the rest of the
    staging buffer, fills the write-out slot for `n + 2`. -/
theorem fl_out {off : Fin 1 → ℕ} {n : ℕ} (h : off = ![pos L n]) (p : ∀ a, off a + S3200.size a ≤ S1600000.size a) (v : valid L n)
    (a : Memref sig .scVector .vmem S25600 .f32) (sm : DmaSem sig) :
    (iprop(∃ (f : Buf (Elt F) ((oW).view.loc (thr d L))) (g : Buf (Elt F) (a.view.loc (thr d L))), Transfers.Flight countersEmb (thr d L) (SemLoc.dma sm) (default : HIx 22) NN
        iprop((((oW).slice (Rect.unit (s := S1600000) off S3200.size p) (fun _ => rfl)).view.loc (thr d L)
              ↦[((oW).slice (Rect.unit (s := S1600000) off S3200.size p) (fun _ => rfl)).view.set]{fullShare} f)
          ∗ ((stg a).view.loc (thr d L) ↦[(stg a).view.set]{fullShare} g))
        ∗ (a.view.loc (thr d L) ↦[Finset.univ \ (stg a).view.set]{fullShare} g)) : sProp 𝕄)
      ⊢ outSlot (F := F) d L a sm (n + 2) := by
  rw [outSlot_pos (F := F) d L (m := n + 2) ⟨by omega, by simpa using v⟩]
  iintro ⟨%f, %g, H, R⟩
  have hD : (iprop((((oW).slice (Rect.unit (s := S1600000) off S3200.size p) (fun _ => rfl)).view.loc (thr d L)
              ↦[((oW).slice (Rect.unit (s := S1600000) off S3200.size p) (fun _ => rfl)).view.set]{fullShare} f)
          ∗ ((stg a).view.loc (thr d L) ↦[(stg a).view.set]{fullShare} g)) : sProp 𝕄)
      ⊢ iprop(oPiece (F := F) d L (n + 2 - 2) ∗ ((stg a).view.loc (thr d L) ↦[(stg a).view.set]{fullShare} g)) := by
    rw [Nat.add_sub_cancel]
    iintro ⟨H1, H2⟩
    isplitl [H1]
    · iexists f; iapply (Entails.of_eq (out_congr d L h p (out_inb L n) f)); iexact H1
    · iexact H2
  iexists g
  isplitl [H]
  · iapply (Transfers.Flight_mono countersEmb (thr d L) hD); iexact H
  · iexact R

/-! The pieces outside the slots, from one trip to the next. -/
def xCore (k : ℕ) : Finset ℕ := (Finset.range 18).filter fun n => n ≠ 2 * k ∧ n ≠ 2 * k + 1 ∧ n ≠ 2 * k + 2 ∧ n ≠ 2 * k + 3
def oCore (k : ℕ) : Finset ℕ := (Finset.range 18).filter fun n => n + 2 ≠ 2 * k ∧ n + 2 ≠ 2 * k + 1 ∧ n ≠ 2 * k ∧ n ≠ 2 * k + 1

omit [FloatOps F] in
theorem xSet_out (Φ : ℕ → sProp 𝕄) (k : ℕ) (hk : k < 8) : bigSep (xSet k) Φ = iprop(Φ (2 * k + 2) ∗ Φ (2 * k + 3) ∗ bigSep (xCore k) Φ) := by
  have e : ((xSet k).erase (2 * k + 2)).erase (2 * k + 3) = xCore k := by
    ext n; simp only [xSet, xCore, Finset.mem_erase, Finset.mem_filter, Finset.mem_range]; omega
  rw [← e]; exact two_out (by simp only [xSet, Finset.mem_filter, Finset.mem_range]; omega) (by simp only [xSet, Finset.mem_filter, Finset.mem_range]; omega) (by omega)
omit [FloatOps F] in
theorem xSet_in (Φ : ℕ → sProp 𝕄) (k : ℕ) (hk : k < 8) : bigSep (xSet (k + 1)) Φ = iprop(Φ (2 * k) ∗ Φ (2 * k + 1) ∗ bigSep (xCore k) Φ) := by
  have e : ((xSet (k + 1)).erase (2 * k)).erase (2 * k + 1) = xCore k := by
    ext n; simp only [xSet, xCore, Finset.mem_erase, Finset.mem_filter, Finset.mem_range]; omega
  rw [← e]; exact two_out (by simp only [xSet, Finset.mem_filter, Finset.mem_range]; omega) (by simp only [xSet, Finset.mem_filter, Finset.mem_range]; omega) (by omega)
omit [FloatOps F] in
theorem oSet_out (Φ : ℕ → sProp 𝕄) (k : ℕ) (hk : k < 8) : bigSep (oSet k) Φ = iprop(Φ (2 * k) ∗ Φ (2 * k + 1) ∗ bigSep (oCore k) Φ) := by
  have e : ((oSet k).erase (2 * k)).erase (2 * k + 1) = oCore k := by
    ext n; simp only [oSet, oCore, Finset.mem_erase, Finset.mem_filter, Finset.mem_range]; omega
  rw [← e]; exact two_out (by simp only [oSet, Finset.mem_filter, Finset.mem_range]; omega) (by simp only [oSet, Finset.mem_filter, Finset.mem_range]; omega) (by omega)
omit [FloatOps F] in
theorem oSet_in (Φ : ℕ → sProp 𝕄) (k : ℕ) (hk : k < 8) (hk1 : 1 ≤ k) :
    bigSep (oSet (k + 1)) Φ = iprop(Φ (2 * k - 2) ∗ Φ (2 * k - 1) ∗ bigSep (oCore k) Φ) := by
  have e : ((oSet (k + 1)).erase (2 * k - 2)).erase (2 * k - 1) = oCore k := by
    ext n; simp only [oSet, oCore, Finset.mem_erase, Finset.mem_filter, Finset.mem_range]; omega
  rw [← e]; exact two_out (by simp only [oSet, Finset.mem_filter, Finset.mem_range]; omega) (by simp only [oSet, Finset.mem_filter, Finset.mem_range]; omega) (by omega)

theorem xP_pos {n : ℕ} (v : valid L n) : xP d L fx n = xtPiece d L fx n := if_pos v
theorem oP_pos {n : ℕ} (v : valid L n) : oP (F := F) d L n = oPiece (F := F) d L n := if_pos v
theorem xP_neg {n : ℕ} (v : ¬ valid L n) : xP d L fx n = iprop(emp) := if_neg v
theorem oP_neg {n : ℕ} (v : ¬ valid L n) : oP (F := F) d L n = iprop(emp) := if_neg v

/-- Piece `n` of the result at its final contents: row 1 of the transposed argument. -/
def oQ (n : ℕ) : sProp 𝕄 :=
  if valid L n then (outM L n).view.loc (thr d L) ↦[(outM L n).view.set]{fullShare} (Cert.Spec.row 1 fx) else iprop(emp)

/-- What a tile is handed for the call: its pieces of row 1 of the transposed argument, at the argument's contents, and
    its pieces of the result at some contents. What it hands back: the same pieces of the argument, and its pieces of
    the result holding the row. -/
def goRes : sProp 𝕄 := iprop(bigSep (Finset.range 18) (xP d L fx) ∗ bigSep (Finset.range 18) (oP (F := F) d L))
def tdRes : sProp 𝕄 := iprop(bigSep (Finset.range 18) (xP d L fx) ∗ bigSep (Finset.range 18) (oQ d L fx))

end Tile

end Cert.Proof.TileK1

end
-- ==== Proof.TileK2Defs.lean ====
/-
  One vector subcore's task of copy kernel 2 (counting from 0): definitions. The task moves its pieces of row 2 of the
  transposed argument (pieces of 3200 consecutive elements, piece number 2·s + c + 32·n for the subcore (c, s) and
  n = 0, 1, … while that number is below 500) into the flat result: each piece is fetched into a staging row, copied
  16 lanes at a time into a flat staging buffer, and written out, two pieces in flight at a time. Here: the pieces as
  memrefs, the program's own spellings of them, the printed conditions as facts about the trip, the two slots' states
  between trips, and what the tile holds outside the slots.
-/
import proofs.«206869_g37898791420194_cont_8to1_b_558_20_alg».proof.Defs
import Idealize.ShloMosaic.Lib.SparseCore.Launch
import Idealize.ShloMosaic.Lib.StableHlo.Run
import Idealize.ShloMosaic.Lib.Pipeline.Kit
import Idealize.ShloMosaic.Lib.Tactic
import proofs.«206869_g37898791420194_cont_8to1_b_558_20_alg».proof.Proof.Gen.KernelIdeal
import proofs.«206869_g37898791420194_cont_8to1_b_558_20_alg».proof.Proof.Gen.KernelIdeal.Skeleton
import proofs.«206869_g37898791420194_cont_8to1_b_558_20_alg».proof.Proof.Spec

noncomputable section

namespace Cert.Proof.TileK2

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

abbrev ΛP : Labels := Pipeline.Sig Λ₀ (Fin 0) fun p => (pcfgs (F := F) p).Adm
abbrev K : SparseCore.Cfg τ sig (ΛP (F := F)) 22 := sc (F := F)
abbrev 𝒱₀ : Variants := Variants.none

abbrev UH : Type := URounds (GSem nD τ sig) ℕ
abbrev UU : Type := UH × Counters

local notation "𝕄" => MT nD τ sig (HIx 22) (Elt F) ℕ UU ℕ

local notation "xtW" => (Memref.whole Cert.KernelIdeal.main_v0_scv : Memref Cert.KernelIdeal.sig Kind.scVector Space.hbm Cert.KernelIdeal.S22x1600000 EltTy.f32)
local notation "oW" => (Memref.whole Cert.KernelIdeal.main_v3_scv : Memref Cert.KernelIdeal.sig Kind.scVector Space.hbm Cert.KernelIdeal.S1600000 EltTy.f32)
local notation "a4" => (Memref.whole Cert.KernelIdeal.cc2_scratch0 : Memref Cert.KernelIdeal.sig Kind.scVector Space.vmem Cert.KernelIdeal.S8x3200 EltTy.f32)
local notation "a5" => (Memref.whole Cert.KernelIdeal.cc2_scratch1 : Memref Cert.KernelIdeal.sig Kind.scVector Space.vmem Cert.KernelIdeal.S8x3200 EltTy.f32)
local notation "a6" => (Memref.whole Cert.KernelIdeal.cc2_scratch2 : Memref Cert.KernelIdeal.sig Kind.scVector Space.vmem Cert.KernelIdeal.S25600 EltTy.f32)
local notation "a7" => (Memref.whole Cert.KernelIdeal.cc2_scratch3 : Memref Cert.KernelIdeal.sig Kind.scVector Space.vmem Cert.KernelIdeal.S25600 EltTy.f32)

variable [FloatOps F]

section Tile

variable (d : Dev nD) (L : grid2.Coords)

abbrev cV (L : grid2.Coords) : Fin τ.nSC := (L 0).castLE hcore2
abbrev jV (L : grid2.Coords) : Fin τ.nSub := (L 1).castLE hsub2
abbrev thr (d : Dev nD) (L : grid2.Coords) : Thread nD τ := V d (cV L) (jV L)

/-- The tile's number 2·s + c, and whether it has sixteen pieces (numbers below 20) or fifteen. -/
abbrev wid (L : grid2.Coords) : ℕ := 2 * (L 1).val + (L 0).val
abbrev big (L : grid2.Coords) : Prop := wid L < 20

omit [FloatOps F] in
theorem wid_lt (L : grid2.Coords) : wid L < 32 := by
  have h0 : (L 0).val < 2 := (L 0).isLt
  have h1 : (L 1).val < 16 := (L 1).isLt
  unfold wid; omega

/-- Piece `n` of the tile exists: `n < 15`, or `n = 15` on a tile with sixteen pieces. It is the piece number
    `wid + 32·n < 500` of the row. -/
def valid (L : grid2.Coords) (n : ℕ) : Prop := n < 15 ∨ (n = 15 ∧ big L)
instance (L : grid2.Coords) (n : ℕ) : Decidable (valid L n) := by unfold valid big; infer_instance

omit [FloatOps F] in
theorem valid_iff (L : grid2.Coords) (n : ℕ) : valid L n ↔ wid L + 32 * n < 500 := by
  have := wid_lt L; unfold valid big; omega

/-- Where piece `n` starts in the row (clamped to the last piece of the row, so that the rectangle is in bounds for
    every `n`; for a valid piece the clamp is idle). -/
abbrev pos (L : grid2.Coords) (n : ℕ) : ℕ := 3200 * min (wid L + 32 * n) 499

omit [FloatOps F] in
theorem pos_valid {L : grid2.Coords} {n : ℕ} (h : valid L n) : pos L n = 6400 * (L 1).val + 3200 * (L 0).val + 102400 * n := by
  have := (valid_iff L n).mp h; unfold pos wid at *; omega

omit [FloatOps F] in
theorem in_inb (L : grid2.Coords) (n : ℕ) : ∀ a, (![2, pos L n] : Fin 2 → ℕ) a + S1x3200.size a ≤ S22x1600000.size a := by
  intro a; fin_cases a
  · show 2 + 1 ≤ 22; omega
  · show pos L n + 3200 ≤ 1600000; unfold pos; omega
omit [FloatOps F] in
theorem out_inb (L : grid2.Coords) (n : ℕ) : ∀ a, (![pos L n] : Fin 1 → ℕ) a + S3200.size a ≤ S1600000.size a := by
  intro a; fin_cases a
  show pos L n + 3200 ≤ 1600000; unfold pos; omega

/-- Piece `n` of row 2 of the transposed argument, and piece `n` of the flat result, as memrefs of the tile. -/
abbrev inM (L : grid2.Coords) (n : ℕ) : Memref sig .scVector .hbm S1x3200 .f32 :=
  (xtW).slice (Rect.unit (s := S22x1600000) ![2, pos L n] S1x3200.size (in_inb L n)) (fun _ => rfl)
abbrev outM (L : grid2.Coords) (n : ℕ) : Memref sig .scVector .hbm S3200 .f32 :=
  (oW).slice (Rect.unit (s := S1600000) ![pos L n] S3200.size (out_inb L n)) (fun _ => rfl)

/-! The program's own slices are these pieces: by the closed forms of its offset functions. -/

omit [FloatOps F] in
theorem off2 {a b : ℕ} (h : a = b) : (![2, a] : Fin 2 → ℕ) = ![2, b] := by rw [h]
omit [FloatOps F] in
theorem off1' {a b : ℕ} (h : a = b) : (![a] : Fin 1 → ℕ) = ![b] := by rw [h]

omit [FloatOps F] in
theorem off_in0 (L : grid2.Coords) (h : valid L 0) : k2_off1 L 0#32 = ![2, pos L 0] :=
  (k2_off1_eq L 0).trans (off2 (by rw [pos_valid h]; simp))
omit [FloatOps F] in
theorem off_in1 (L : grid2.Coords) (h : valid L 1) : k2_off1 L 32#32 = ![2, pos L 1] :=
  (k2_off1_eq L 1).trans (off2 (by rw [pos_valid h]; simp))
omit [FloatOps F] in
theorem off_6 (L : grid2.Coords) (t : Fin k2_t1_loop.trips) (h : valid L (2 * t.val + 2)) : k2_off6 L t = ![2, pos L (2 * t.val + 2)] :=
  (k2_off6_eq L t).trans (off2 (by rw [pos_valid h]; omega))
omit [FloatOps F] in
theorem off_11 (L : grid2.Coords) (t : Fin k2_t1_loop.trips) (h : valid L (2 * t.val + 3)) : k2_off11 L t = ![2, pos L (2 * t.val + 3)] :=
  (k2_off11_eq L t).trans (off2 (by rw [pos_valid h]; omega))
omit [FloatOps F] in
theorem off_5 (L : grid2.Coords) (t : Fin k2_t1_loop.trips) (h : valid L (2 * t.val)) : k2_off5 L t = ![pos L (2 * t.val)] :=
  (k2_off5_eq L t).trans (off1' (by rw [pos_valid h]; omega))
omit [FloatOps F] in
theorem off_10 (L : grid2.Coords) (t : Fin k2_t1_loop.trips) (h : valid L (2 * t.val + 1)) : k2_off10 L t = ![pos L (2 * t.val + 1)] :=
  (k2_off10_eq L t).trans (off1' (by rw [pos_valid h]; omega))

/-- Holding a 1 × 3200 window of the transposed argument, or a 3200 window of the result, by exactly its elements
    says the same whichever way the window's offsets are spelt. -/
theorem in_congr {off off' : Fin 2 → ℕ} (h : off = off') (p : ∀ a, off a + S1x3200.size a ≤ S22x1600000.size a)
    (p' : ∀ a, off' a + S1x3200.size a ≤ S22x1600000.size a) (f : Buf (Elt F) ((xtW).view.loc (thr d L))) :
    (((xtW).slice (Rect.unit (s := S22x1600000) off S1x3200.size p) (fun _ => rfl)).view.loc (thr d L)
        ↦[((xtW).slice (Rect.unit (s := S22x1600000) off S1x3200.size p) (fun _ => rfl)).view.set]{fullShare} f : sProp 𝕄)
      = (((xtW).slice (Rect.unit (s := S22x1600000) off' S1x3200.size p') (fun _ => rfl)).view.loc (thr d L)
        ↦[((xtW).slice (Rect.unit (s := S22x1600000) off' S1x3200.size p') (fun _ => rfl)).view.set]{fullShare} f) := by
  subst h; rfl
theorem out_congr {off off' : Fin 1 → ℕ} (h : off = off') (p : ∀ a, off a + S3200.size a ≤ S1600000.size a)
    (p' : ∀ a, off' a + S3200.size a ≤ S1600000.size a) (f : Buf (Elt F) ((oW).view.loc (thr d L))) :
    (((oW).slice (Rect.unit (s := S1600000) off S3200.size p) (fun _ => rfl)).view.loc (thr d L)
        ↦[((oW).slice (Rect.unit (s := S1600000) off S3200.size p) (fun _ => rfl)).view.set]{fullShare} f : sProp 𝕄)
      = (((oW).slice (Rect.unit (s := S1600000) off' S3200.size p') (fun _ => rfl)).view.loc (thr d L)
        ↦[((oW).slice (Rect.unit (s := S1600000) off' S3200.size p') (fun _ => rfl)).view.set]{fullShare} f) := by
  subst h; rfl

/-! The printed conditions, as facts about the trip and the tile. -/

omit [FloatOps F] in
theorem trips1 : k2_t1_loop.trips = 8 := by decide
omit [FloatOps F] in
theorem cond1_iff : ∀ (t : Fin k2_t1_loop.trips), k2_cond1 t = 1#1 ↔ 1 ≤ t.val := by decide +kernel
omit [FloatOps F] in
theorem cond2_iff : ∀ (L : grid2.Coords) (t : Fin k2_t1_loop.trips), k2_cond2 L t = 1#1 := by decide +kernel
omit [FloatOps F] in
theorem cond3_iff : ∀ (L : grid2.Coords) (t : Fin k2_t1_loop.trips), k2_cond3 L t = 1#1 ↔ t.val ≤ 6 := by decide +kernel
omit [FloatOps F] in
theorem cond4_iff : ∀ (t : Fin k2_t1_loop.trips), k2_cond4 t = 1#1 ↔ 1 ≤ t.val := by decide +kernel
omit [FloatOps F] in
theorem cond5_iff : ∀ (L : grid2.Coords) (t : Fin k2_t1_loop.trips), k2_cond5 L t = 1#1 ↔ (t.val ≤ 6 ∨ big L) := by decide +kernel
omit [FloatOps F] in
theorem cond6_iff : ∀ (L : grid2.Coords) (t : Fin k2_t1_loop.trips), k2_cond6 L t = 1#1 ↔ (t.val ≤ 5 ∨ (t.val = 6 ∧ big L)) := by decide +kernel
omit [FloatOps F] in
theorem cond7_iff : ∀ (L : grid2.Coords), k2_cond7 L = 1#1 := by decide +kernel
omit [FloatOps F] in
theorem cond8_iff : ∀ (L : grid2.Coords), k2_cond8 L = 1#1 ↔ big L := by decide +kernel

variable (O : CellTallies nD τ sig (HIx 22)) (W : Waits sig (HIx 22))
variable (fx : Buf (Elt F) ((xtW).view.loc (thr d L)))

abbrev NN : ℕ := 102400

/-- The 3200-element window of a flat staging buffer that a piece is written out from. -/
abbrev stg (a : Memref sig .scVector .vmem S25600 .f32) : Memref sig .scVector .vmem S3200 .f32 :=
  a.slice (Rect.unit (s := S25600) ![0] S3200.size inb_S25600_S3200_0) (fun _ => rfl)

/-- Piece `n` of the argument row held by exactly its elements, at the argument's contents; piece `n` of the result
    held by exactly its elements, at some contents. -/
abbrev xtPiece (n : ℕ) : sProp 𝕄 := (inM L n).view.loc (thr d L) ↦[(inM L n).view.set]{fullShare} fx
abbrev oPiece (n : ℕ) : sProp 𝕄 := iprop(∃ f, (outM L n).view.loc (thr d L) ↦[(outM L n).view.set]{fullShare} f)

/-- The lane-copy loop of a slot: the staging row keeps its contents, the flat staging buffer holds some contents. -/
def laneInv0 (g4 : Buf (Elt F) ((a4).view.loc (thr d L))) (_ : ℕ) (_ : PUnit) : sProp 𝕄 :=
  iprop(((a4).view.loc (thr d L) ↦{fullShare} g4) ∗ (∃ g, (a6).view.loc (thr d L) ↦{fullShare} g))
def laneInv1 (g5 : Buf (Elt F) ((a5).view.loc (thr d L))) (_ : ℕ) (_ : PUnit) : sProp 𝕄 :=
  iprop(((a5).view.loc (thr d L) ↦{fullShare} g5) ∗ (∃ g, (a7).view.loc (thr d L) ↦{fullShare} g))

/-- A fetch slot before trip work on piece `n`: the piece's fetch in flight (it will hand back the staging row at some
    contents, and the piece), or, when there is no such piece, the slot idle. -/
def inSlot (a : Memref sig .scVector .vmem S8x3200 .f32) (sm : DmaSem sig) (n : ℕ) : sProp 𝕄 :=
  if valid L n then
    iprop(∃ g, Transfers.Flight countersEmb (thr d L) (SemLoc.dma sm) (default : HIx 22) NN
      iprop((a.view.loc (thr d L) ↦{fullShare} g) ∗ xtPiece d L fx n))
  else iprop((∃ g, a.view.loc (thr d L) ↦{fullShare} g) ∗ semVal (thr d L, SemLoc.dma sm) 0)

/-- A write-out slot before trip work on piece `m`: piece `m - 2`'s write-out in flight (it will hand back that piece
    of the result at some contents, and the staging window), the rest of the staging buffer beside it; or idle. -/
def outSlot (a : Memref sig .scVector .vmem S25600 .f32) (sm : DmaSem sig) (m : ℕ) : sProp 𝕄 :=
  if 2 ≤ m ∧ valid L (m - 2) then
    iprop(∃ g, Transfers.Flight countersEmb (thr d L) (SemLoc.dma sm) (default : HIx 22) NN
        iprop(oPiece d L (m - 2) ∗ ((stg a).view.loc (thr d L) ↦[(stg a).view.set]{fullShare} g))
      ∗ (a.view.loc (thr d L) ↦[Finset.univ \ (stg a).view.set]{fullShare} g))
  else iprop((∃ g, a.view.loc (thr d L) ↦{fullShare} g) ∗ semVal (thr d L, SemLoc.dma sm) 0)

/-- Piece `n` when it exists, nothing otherwise. -/
def xP (n : ℕ) : sProp 𝕄 := if valid L n then xtPiece d L fx n else iprop(emp)
def oP (n : ℕ) : sProp 𝕄 := if valid L n then oPiece d L n else iprop(emp)

/-- What the tile holds outside the slots before trip `t`: every piece of the argument row but those being fetched
    (`2t`, `2t + 1`), every piece of the result but those being written out (`2t - 2`, `2t - 1`). -/
def xSet (t : ℕ) : Finset ℕ := (Finset.range 18).filter fun n => n ≠ 2 * t ∧ n ≠ 2 * t + 1
def oSet (t : ℕ) : Finset ℕ := (Finset.range 18).filter fun n => n + 2 ≠ 2 * t ∧ n + 2 ≠ 2 * t + 1

def inv (t : ℕ) (_ : PUnit) : sProp 𝕄 :=
  iprop(Transfers.MayWaits (thr d L) (none : HIx 22) O
    ∗ (∃ W', ⌜∀ p ∈ W', p ∈ W ∨ p.2 = none⌝ ∗ owes (thr d L) O W')
    ∗ bigSep (xSet t) (xP d L fx) ∗ bigSep (oSet t) (oP d L)
    ∗ inSlot d L fx a4 cc2_scratch4.sem (2 * t) ∗ outSlot d L a6 cc2_scratch6.sem (2 * t)
    ∗ inSlot d L fx a5 cc2_scratch5.sem (2 * t + 1) ∗ outSlot d L a7 cc2_scratch7.sem (2 * t + 1))

omit [FloatOps F] in
theorem two_out {Φ : ℕ → sProp 𝕄} {s : Finset ℕ} {a b : ℕ} (ha : a ∈ s) (hb : b ∈ s) (hab : a ≠ b) :
    bigSep s Φ = iprop(Φ a ∗ Φ b ∗ bigSep ((s.erase a).erase b) Φ) := by
  rw [SparseCore.bigSep_erase' ha, SparseCore.bigSep_erase' (Finset.mem_erase.mpr ⟨fun e => hab e.symm, hb⟩)]

omit [FloatOps F] in
theorem range18_split : (Finset.range 18) = insert 0 (insert 1 (xSet 0)) := by decide

theorem xRange_split (v0 : valid L 0) (v1 : valid L 1) :
    bigSep (Finset.range 18) (xP d L fx) = iprop(xtPiece d L fx 0 ∗ xtPiece d L fx 1 ∗ bigSep (xSet 0) (xP d L fx)) := by
  rw [range18_split, SparseCore.bigSep_insert' (by decide), SparseCore.bigSep_insert' (by decide)]
  unfold xP; rw [if_pos v0, if_pos v1]
omit [FloatOps F] in
theorem oSet_zero : oSet 0 = Finset.range 18 := by decide

theorem inSlot_pos {a : Memref sig .scVector .vmem S8x3200 .f32} {sm : DmaSem sig} {n : ℕ} (v : valid L n) :
    inSlot d L fx a sm n = iprop(∃ g, Transfers.Flight countersEmb (thr d L) (SemLoc.dma sm) (default : HIx 22) NN
      iprop((a.view.loc (thr d L) ↦{fullShare} g) ∗ xtPiece d L fx n)) := by unfold inSlot; rw [if_pos v]
theorem inSlot_neg {a : Memref sig .scVector .vmem S8x3200 .f32} {sm : DmaSem sig} {n : ℕ} (v : ¬ valid L n) :
    inSlot d L fx a sm n = iprop((∃ g, a.view.loc (thr d L) ↦{fullShare} g) ∗ semVal (thr d L, SemLoc.dma sm) 0) := by
  unfold inSlot; rw [if_neg v]
theorem outSlot_pos {a : Memref sig .scVector .vmem S25600 .f32} {sm : DmaSem sig} {m : ℕ} (h : 2 ≤ m ∧ valid L (m - 2)) :
    outSlot (F := F) d L a sm m = iprop(∃ g, Transfers.Flight countersEmb (thr d L) (SemLoc.dma sm) (default : HIx 22) NN
        iprop(oPiece (F := F) d L (m - 2) ∗ ((stg a).view.loc (thr d L) ↦[(stg a).view.set]{fullShare} g))
      ∗ (a.view.loc (thr d L) ↦[Finset.univ \ (stg a).view.set]{fullShare} g)) := by unfold outSlot; rw [if_pos h]
theorem outSlot_neg {a : Memref sig .scVector .vmem S25600 .f32} {sm : DmaSem sig} {m : ℕ} (h : ¬ (2 ≤ m ∧ valid L (m - 2))) :
    outSlot (F := F) d L a sm m = iprop((∃ g, a.view.loc (thr d L) ↦{fullShare} g) ∗ semVal (thr d L, SemLoc.dma sm) 0) := by
  unfold outSlot; rw [if_neg h]

/-- A fetch in flight, its source window spelt by any offsets equal to piece `n`'s, fills the fetch slot for `n`. -/
theorem fl_in {off : Fin 2 → ℕ} {n : ℕ} (h : off = ![2, pos L n]) (p : ∀ a, off a + S1x3200.size a ≤ S22x1600000.size a) (v : valid L n)
    (a : Memref sig .scVector .vmem S8x3200 .f32) (sm : DmaSem sig) :
    (iprop(∃ g, Transfers.Flight countersEmb (thr d L) (SemLoc.dma sm) (default : HIx 22) NN
        iprop((a.view.loc (thr d L) ↦{fullShare} g)
          ∗ (((xtW).slice (Rect.unit (s := S22x1600000) off S1x3200.size p) (fun _ => rfl)).view.loc (thr d L)
              ↦[((xtW).slice (Rect.unit (s := S22x1600000) off S1x3200.size p) (fun _ => rfl)).view.set]{fullShare} fx))) : sProp 𝕄)
      ⊢ inSlot d L fx a sm n := by
  rw [inSlot_pos d L fx v]
  iintro ⟨%g, H⟩
  have hD : (iprop((a.view.loc (thr d L) ↦{fullShare} g)
          ∗ (((xtW).slice (Rect.unit (s := S22x1600000) off S1x3200.size p) (fun _ => rfl)).view.loc (thr d L)
              ↦[((xtW).slice (Rect.unit (s := S22x1600000) off S1x3200.size p) (fun _ => rfl)).view.set]{fullShare} fx)) : sProp 𝕄)
      ⊢ iprop((a.view.loc (thr d L) ↦{fullShare} g) ∗ xtPiece d L fx n) := by
    iintro ⟨H1, H2⟩
    isplitl [H1]; · iexact H1
    iapply (Entails.of_eq (in_congr d L h p (in_inb L n) fx)); iexact H2
  iexists g
  iapply (Transfers.Flight_mono countersEmb (thr d L) hD); iexact H

/-- A write-out in flight, its destination window spelt by any offsets equal to piece `n`'s, with the rest of the
    staging buffer, fills the write-out slot for `n + 2`. -/
theorem fl_out {off : Fin 1 → ℕ} {n : ℕ} (h : off = ![pos L n]) (p : ∀ a, off a + S3200.size a ≤ S1600000.size a) (v : valid L n)
    (a : Memref sig .scVector .vmem S25600 .f32) (sm : DmaSem sig) :
    (iprop(∃ (f : Buf (Elt F) ((oW).view.loc (thr d L))) (g : Buf (Elt F) (a.view.loc (thr d L))), Transfers.Flight countersEmb (thr d L) (SemLoc.dma sm) (default : HIx 22) NN
        iprop((((oW).slice (Rect.unit (s := S1600000) off S3200.size p) (fun _ => rfl)).view.loc (thr d L)
              ↦[((oW).slice (Rect.unit (s := S1600000) off S3200.size p) (fun _ => rfl)).view.set]{fullShare} f)
          ∗ ((stg a).view.loc (thr d L) ↦[(stg a).view.set]{fullShare} g))
        ∗ (a.view.loc (thr d L) ↦[Finset.univ \ (stg a).view.set]{fullShare} g)) : sProp 𝕄)
      ⊢ outSlot (F := F) d L a sm (n + 2) := by
  rw [outSlot_pos (F := F) d L (m := n + 2) ⟨by omega, by simpa using v⟩]
  iintro ⟨%f, %g, H, R⟩
  have hD : (iprop((((oW).slice (Rect.unit (s := S1600000) off S3200.size p) (fun _ => rfl)).view.loc (thr d L)
              ↦[((oW).slice (Rect.unit (s := S1600000) off S3200.size p) (fun _ => rfl)).view.set]{fullShare} f)
          ∗ ((stg a).view.loc (thr d L) ↦[(stg a).view.set]{fullShare} g)) : sProp 𝕄)
      ⊢ iprop(oPiece (F := F) d L (n + 2 - 2) ∗ ((stg a).view.loc (thr d L) ↦[(stg a).view.set]{fullShare} g)) := by
    rw [Nat.add_sub_cancel]
    iintro ⟨H1, H2⟩
    isplitl [H1]
    · iexists f; iapply (Entails.of_eq (out_congr d L h p (out_inb L n) f)); iexact H1
    · iexact H2
  iexists g
  isplitl [H]
  · iapply (Transfers.Flight_mono countersEmb (thr d L) hD); iexact H
  · iexact R

/-! The pieces outside the slots, from one trip to the next. -/
def xCore (k : ℕ) : Finset ℕ := (Finset.range 18).filter fun n => n ≠ 2 * k ∧ n ≠ 2 * k + 1 ∧ n ≠ 2 * k + 2 ∧ n ≠ 2 * k + 3
def oCore (k : ℕ) : Finset ℕ := (Finset.range 18).filter fun n => n + 2 ≠ 2 * k ∧ n + 2 ≠ 2 * k + 1 ∧ n ≠ 2 * k ∧ n ≠ 2 * k + 1

omit [FloatOps F] in
theorem xSet_out (Φ : ℕ → sProp 𝕄) (k : ℕ) (hk : k < 8) : bigSep (xSet k) Φ = iprop(Φ (2 * k + 2) ∗ Φ (2 * k + 3) ∗ bigSep (xCore k) Φ) := by
  have e : ((xSet k).erase (2 * k + 2)).erase (2 * k + 3) = xCore k := by
    ext n; simp only [xSet, xCore, Finset.mem_erase, Finset.mem_filter, Finset.mem_range]; omega
  rw [← e]; exact two_out (by simp only [xSet, Finset.mem_filter, Finset.mem_range]; omega) (by simp only [xSet, Finset.mem_filter, Finset.mem_range]; omega) (by omega)
omit [FloatOps F] in
theorem xSet_in (Φ : ℕ → sProp 𝕄) (k : ℕ) (hk : k < 8) : bigSep (xSet (k + 1)) Φ = iprop(Φ (2 * k) ∗ Φ (2 * k + 1) ∗ bigSep (xCore k) Φ) := by
  have e : ((xSet (k + 1)).erase (2 * k)).erase (2 * k + 1) = xCore k := by
    ext n; simp only [xSet, xCore, Finset.mem_erase, Finset.mem_filter, Finset.mem_range]; omega
  rw [← e]; exact two_out (by simp only [xSet, Finset.mem_filter, Finset.mem_range]; omega) (by simp only [xSet, Finset.mem_filter, Finset.mem_range]; omega) (by omega)
omit [FloatOps F] in
theorem oSet_out (Φ : ℕ → sProp 𝕄) (k : ℕ) (hk : k < 8) : bigSep (oSet k) Φ = iprop(Φ (2 * k) ∗ Φ (2 * k + 1) ∗ bigSep (oCore k) Φ) := by
  have e : ((oSet k).erase (2 * k)).erase (2 * k + 1) = oCore k := by
    ext n; simp only [oSet, oCore, Finset.mem_erase, Finset.mem_filter, Finset.mem_range]; omega
  rw [← e]; exact two_out (by simp only [oSet, Finset.mem_filter, Finset.mem_range]; omega) (by simp only [oSet, Finset.mem_filter, Finset.mem_range]; omega) (by omega)
omit [FloatOps F] in
theorem oSet_in (Φ : ℕ → sProp 𝕄) (k : ℕ) (hk : k < 8) (hk1 : 1 ≤ k) :
    bigSep (oSet (k + 1)) Φ = iprop(Φ (2 * k - 2) ∗ Φ (2 * k - 1) ∗ bigSep (oCore k) Φ) := by
  have e : ((oSet (k + 1)).erase (2 * k - 2)).erase (2 * k - 1) = oCore k := by
    ext n; simp only [oSet, oCore, Finset.mem_erase, Finset.mem_filter, Finset.mem_range]; omega
  rw [← e]; exact two_out (by simp only [oSet, Finset.mem_filter, Finset.mem_range]; omega) (by simp only [oSet, Finset.mem_filter, Finset.mem_range]; omega) (by omega)

theorem xP_pos {n : ℕ} (v : valid L n) : xP d L fx n = xtPiece d L fx n := if_pos v
theorem oP_pos {n : ℕ} (v : valid L n) : oP (F := F) d L n = oPiece (F := F) d L n := if_pos v
theorem xP_neg {n : ℕ} (v : ¬ valid L n) : xP d L fx n = iprop(emp) := if_neg v
theorem oP_neg {n : ℕ} (v : ¬ valid L n) : oP (F := F) d L n = iprop(emp) := if_neg v

/-- Piece `n` of the result at its final contents: row 2 of the transposed argument. -/
def oQ (n : ℕ) : sProp 𝕄 :=
  if valid L n then (outM L n).view.loc (thr d L) ↦[(outM L n).view.set]{fullShare} (Cert.Spec.row 2 fx) else iprop(emp)

/-- What a tile is handed for the call: its pieces of row 2 of the transposed argument, at the argument's contents, and
    its pieces of the result at some contents. What it hands back: the same pieces of the argument, and its pieces of
    the result holding the row. -/
def goRes : sProp 𝕄 := iprop(bigSep (Finset.range 18) (xP d L fx) ∗ bigSep (Finset.range 18) (oP (F := F) d L))
def tdRes : sProp 𝕄 := iprop(bigSep (Finset.range 18) (xP d L fx) ∗ bigSep (Finset.range 18) (oQ d L fx))

end Tile

end Cert.Proof.TileK2

end
-- ==== Proof.TileK3Defs.lean ====
/-
  One vector subcore's task of copy kernel 3 (counting from 0): definitions. The task moves its pieces of row 3 of the
  transposed argument (pieces of 3200 consecutive elements, piece number 2·s + c + 32·n for the subcore (c, s) and
  n = 0, 1, … while that number is below 500) into the flat result: each piece is fetched into a staging row, copied
  16 lanes at a time into a flat staging buffer, and written out, two pieces in flight at a time. Here: the pieces as
  memrefs, the program's own spellings of them, the printed conditions as facts about the trip, the two slots' states
  between trips, and what the tile holds outside the slots.
-/
import proofs.«206869_g37898791420194_cont_8to1_b_558_20_alg».proof.Defs
import Idealize.ShloMosaic.Lib.SparseCore.Launch
import Idealize.ShloMosaic.Lib.StableHlo.Run
import Idealize.ShloMosaic.Lib.Pipeline.Kit
import Idealize.ShloMosaic.Lib.Tactic
import proofs.«206869_g37898791420194_cont_8to1_b_558_20_alg».proof.Proof.Gen.KernelIdeal
import proofs.«206869_g37898791420194_cont_8to1_b_558_20_alg».proof.Proof.Gen.KernelIdeal.Skeleton
import proofs.«206869_g37898791420194_cont_8to1_b_558_20_alg».proof.Proof.Spec

noncomputable section

namespace Cert.Proof.TileK3

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

abbrev ΛP : Labels := Pipeline.Sig Λ₀ (Fin 0) fun p => (pcfgs (F := F) p).Adm
abbrev K : SparseCore.Cfg τ sig (ΛP (F := F)) 22 := sc (F := F)
abbrev 𝒱₀ : Variants := Variants.none

abbrev UH : Type := URounds (GSem nD τ sig) ℕ
abbrev UU : Type := UH × Counters

local notation "𝕄" => MT nD τ sig (HIx 22) (Elt F) ℕ UU ℕ

local notation "xtW" => (Memref.whole Cert.KernelIdeal.main_v0_scv : Memref Cert.KernelIdeal.sig Kind.scVector Space.hbm Cert.KernelIdeal.S22x1600000 EltTy.f32)
local notation "oW" => (Memref.whole Cert.KernelIdeal.main_v4_scv : Memref Cert.KernelIdeal.sig Kind.scVector Space.hbm Cert.KernelIdeal.S1600000 EltTy.f32)
local notation "a4" => (Memref.whole Cert.KernelIdeal.cc3_scratch0 : Memref Cert.KernelIdeal.sig Kind.scVector Space.vmem Cert.KernelIdeal.S8x3200 EltTy.f32)
local notation "a5" => (Memref.whole Cert.KernelIdeal.cc3_scratch1 : Memref Cert.KernelIdeal.sig Kind.scVector Space.vmem Cert.KernelIdeal.S8x3200 EltTy.f32)
local notation "a6" => (Memref.whole Cert.KernelIdeal.cc3_scratch2 : Memref Cert.KernelIdeal.sig Kind.scVector Space.vmem Cert.KernelIdeal.S25600 EltTy.f32)
local notation "a7" => (Memref.whole Cert.KernelIdeal.cc3_scratch3 : Memref Cert.KernelIdeal.sig Kind.scVector Space.vmem Cert.KernelIdeal.S25600 EltTy.f32)

variable [FloatOps F]

section Tile

variable (d : Dev nD) (L : grid3.Coords)

abbrev cV (L : grid3.Coords) : Fin τ.nSC := (L 0).castLE hcore3
abbrev jV (L : grid3.Coords) : Fin τ.nSub := (L 1).castLE hsub3
abbrev thr (d : Dev nD) (L : grid3.Coords) : Thread nD τ := V d (cV L) (jV L)

/-- The tile's number 2·s + c, and whether it has sixteen pieces (numbers below 20) or fifteen. -/
abbrev wid (L : grid3.Coords) : ℕ := 2 * (L 1).val + (L 0).val
abbrev big (L : grid3.Coords) : Prop := wid L < 20

omit [FloatOps F] in
theorem wid_lt (L : grid3.Coords) : wid L < 32 := by
  have h0 : (L 0).val < 2 := (L 0).isLt
  have h1 : (L 1).val < 16 := (L 1).isLt
  unfold wid; omega

/-- Piece `n` of the tile exists: `n < 15`, or `n = 15` on a tile with sixteen pieces. It is the piece number
    `wid + 32·n < 500` of the row. -/
def valid (L : grid3.Coords) (n : ℕ) : Prop := n < 15 ∨ (n = 15 ∧ big L)
instance (L : grid3.Coords) (n : ℕ) : Decidable (valid L n) := by unfold valid big; infer_instance

omit [FloatOps F] in
theorem valid_iff (L : grid3.Coords) (n : ℕ) : valid L n ↔ wid L + 32 * n < 500 := by
  have := wid_lt L; unfold valid big; omega

/-- Where piece `n` starts in the row (clamped to the last piece of the row, so that the rectangle is in bounds for
    every `n`; for a valid piece the clamp is idle). -/
abbrev pos (L : grid3.Coords) (n : ℕ) : ℕ := 3200 * min (wid L + 32 * n) 499

omit [FloatOps F] in
theorem pos_valid {L : grid3.Coords} {n : ℕ} (h : valid L n) : pos L n = 6400 * (L 1).val + 3200 * (L 0).val + 102400 * n := by
  have := (valid_iff L n).mp h; unfold pos wid at *; omega

omit [FloatOps F] in
theorem in_inb (L : grid3.Coords) (n : ℕ) : ∀ a, (![3, pos L n] : Fin 2 → ℕ) a + S1x3200.size a ≤ S22x1600000.size a := by
  intro a; fin_cases a
  · show 3 + 1 ≤ 22; omega
  · show pos L n + 3200 ≤ 1600000; unfold pos; omega
omit [FloatOps F] in
theorem out_inb (L : grid3.Coords) (n : ℕ) : ∀ a, (![pos L n] : Fin 1 → ℕ) a + S3200.size a ≤ S1600000.size a := by
  intro a; fin_cases a
  show pos L n + 3200 ≤ 1600000; unfold pos; omega

/-- Piece `n` of row 3 of the transposed argument, and piece `n` of the flat result, as memrefs of the tile. -/
abbrev inM (L : grid3.Coords) (n : ℕ) : Memref sig .scVector .hbm S1x3200 .f32 :=
  (xtW).slice (Rect.unit (s := S22x1600000) ![3, pos L n] S1x3200.size (in_inb L n)) (fun _ => rfl)
abbrev outM (L : grid3.Coords) (n : ℕ) : Memref sig .scVector .hbm S3200 .f32 :=
  (oW).slice (Rect.unit (s := S1600000) ![pos L n] S3200.size (out_inb L n)) (fun _ => rfl)

/-! The program's own slices are these pieces: by the closed forms of its offset functions. -/

omit [FloatOps F] in
theorem off2 {a b : ℕ} (h : a = b) : (![3, a] : Fin 2 → ℕ) = ![3, b] := by rw [h]
omit [FloatOps F] in
theorem off1' {a b : ℕ} (h : a = b) : (![a] : Fin 1 → ℕ) = ![b] := by rw [h]

omit [FloatOps F] in
theorem off_in0 (L : grid3.Coords) (h : valid L 0) : k3_off1 L 0#32 = ![3, pos L 0] :=
  (k3_off1_eq L 0).trans (off2 (by rw [pos_valid h]; simp))
omit [FloatOps F] in
theorem off_in1 (L : grid3.Coords) (h : valid L 1) : k3_off1 L 32#32 = ![3, pos L 1] :=
  (k3_off1_eq L 1).trans (off2 (by rw [pos_valid h]; simp))
omit [FloatOps F] in
theorem off_6 (L : grid3.Coords) (t : Fin k3_t1_loop.trips) (h : valid L (2 * t.val + 2)) : k3_off6 L t = ![3, pos L (2 * t.val + 2)] :=
  (k3_off6_eq L t).trans (off2 (by rw [pos_valid h]; omega))
omit [FloatOps F] in
theorem off_11 (L : grid3.Coords) (t : Fin k3_t1_loop.trips) (h : valid L (2 * t.val + 3)) : k3_off11 L t = ![3, pos L (2 * t.val + 3)] :=
  (k3_off11_eq L t).trans (off2 (by rw [pos_valid h]; omega))
omit [FloatOps F] in
theorem off_5 (L : grid3.Coords) (t : Fin k3_t1_loop.trips) (h : valid L (2 * t.val)) : k3_off5 L t = ![pos L (2 * t.val)] :=
  (k3_off5_eq L t).trans (off1' (by rw [pos_valid h]; omega))
omit [FloatOps F] in
theorem off_10 (L : grid3.Coords) (t : Fin k3_t1_loop.trips) (h : valid L (2 * t.val + 1)) : k3_off10 L t = ![pos L (2 * t.val + 1)] :=
  (k3_off10_eq L t).trans (off1' (by rw [pos_valid h]; omega))

/-- Holding a 1 × 3200 window of the transposed argument, or a 3200 window of the result, by exactly its elements
    says the same whichever way the window's offsets are spelt. -/
theorem in_congr {off off' : Fin 2 → ℕ} (h : off = off') (p : ∀ a, off a + S1x3200.size a ≤ S22x1600000.size a)
    (p' : ∀ a, off' a + S1x3200.size a ≤ S22x1600000.size a) (f : Buf (Elt F) ((xtW).view.loc (thr d L))) :
    (((xtW).slice (Rect.unit (s := S22x1600000) off S1x3200.size p) (fun _ => rfl)).view.loc (thr d L)
        ↦[((xtW).slice (Rect.unit (s := S22x1600000) off S1x3200.size p) (fun _ => rfl)).view.set]{fullShare} f : sProp 𝕄)
      = (((xtW).slice (Rect.unit (s := S22x1600000) off' S1x3200.size p') (fun _ => rfl)).view.loc (thr d L)
        ↦[((xtW).slice (Rect.unit (s := S22x1600000) off' S1x3200.size p') (fun _ => rfl)).view.set]{fullShare} f) := by
  subst h; rfl
theorem out_congr {off off' : Fin 1 → ℕ} (h : off = off') (p : ∀ a, off a + S3200.size a ≤ S1600000.size a)
    (p' : ∀ a, off' a + S3200.size a ≤ S1600000.size a) (f : Buf (Elt F) ((oW).view.loc (thr d L))) :
    (((oW).slice (Rect.unit (s := S1600000) off S3200.size p) (fun _ => rfl)).view.loc (thr d L)
        ↦[((oW).slice (Rect.unit (s := S1600000) off S3200.size p) (fun _ => rfl)).view.set]{fullShare} f : sProp 𝕄)
      = (((oW).slice (Rect.unit (s := S1600000) off' S3200.size p') (fun _ => rfl)).view.loc (thr d L)
        ↦[((oW).slice (Rect.unit (s := S1600000) off' S3200.size p') (fun _ => rfl)).view.set]{fullShare} f) := by
  subst h; rfl

/-! The printed conditions, as facts about the trip and the tile. -/

omit [FloatOps F] in
theorem trips1 : k3_t1_loop.trips = 8 := by decide
omit [FloatOps F] in
theorem cond1_iff : ∀ (t : Fin k3_t1_loop.trips), k3_cond1 t = 1#1 ↔ 1 ≤ t.val := by decide +kernel
omit [FloatOps F] in
theorem cond2_iff : ∀ (L : grid3.Coords) (t : Fin k3_t1_loop.trips), k3_cond2 L t = 1#1 := by decide +kernel
omit [FloatOps F] in
theorem cond3_iff : ∀ (L : grid3.Coords) (t : Fin k3_t1_loop.trips), k3_cond3 L t = 1#1 ↔ t.val ≤ 6 := by decide +kernel
omit [FloatOps F] in
theorem cond4_iff : ∀ (t : Fin k3_t1_loop.trips), k3_cond4 t = 1#1 ↔ 1 ≤ t.val := by decide +kernel
omit [FloatOps F] in
theorem cond5_iff : ∀ (L : grid3.Coords) (t : Fin k3_t1_loop.trips), k3_cond5 L t = 1#1 ↔ (t.val ≤ 6 ∨ big L) := by decide +kernel
omit [FloatOps F] in
theorem cond6_iff : ∀ (L : grid3.Coords) (t : Fin k3_t1_loop.trips), k3_cond6 L t = 1#1 ↔ (t.val ≤ 5 ∨ (t.val = 6 ∧ big L)) := by decide +kernel
omit [FloatOps F] in
theorem cond7_iff : ∀ (L : grid3.Coords), k3_cond7 L = 1#1 := by decide +kernel
omit [FloatOps F] in
theorem cond8_iff : ∀ (L : grid3.Coords), k3_cond8 L = 1#1 ↔ big L := by decide +kernel

variable (O : CellTallies nD τ sig (HIx 22)) (W : Waits sig (HIx 22))
variable (fx : Buf (Elt F) ((xtW).view.loc (thr d L)))

abbrev NN : ℕ := 102400

/-- The 3200-element window of a flat staging buffer that a piece is written out from. -/
abbrev stg (a : Memref sig .scVector .vmem S25600 .f32) : Memref sig .scVector .vmem S3200 .f32 :=
  a.slice (Rect.unit (s := S25600) ![0] S3200.size inb_S25600_S3200_0) (fun _ => rfl)

/-- Piece `n` of the argument row held by exactly its elements, at the argument's contents; piece `n` of the result
    held by exactly its elements, at some contents. -/
abbrev xtPiece (n : ℕ) : sProp 𝕄 := (inM L n).view.loc (thr d L) ↦[(inM L n).view.set]{fullShare} fx
abbrev oPiece (n : ℕ) : sProp 𝕄 := iprop(∃ f, (outM L n).view.loc (thr d L) ↦[(outM L n).view.set]{fullShare} f)

/-- The lane-copy loop of a slot: the staging row keeps its contents, the flat staging buffer holds some contents. -/
def laneInv0 (g4 : Buf (Elt F) ((a4).view.loc (thr d L))) (_ : ℕ) (_ : PUnit) : sProp 𝕄 :=
  iprop(((a4).view.loc (thr d L) ↦{fullShare} g4) ∗ (∃ g, (a6).view.loc (thr d L) ↦{fullShare} g))
def laneInv1 (g5 : Buf (Elt F) ((a5).view.loc (thr d L))) (_ : ℕ) (_ : PUnit) : sProp 𝕄 :=
  iprop(((a5).view.loc (thr d L) ↦{fullShare} g5) ∗ (∃ g, (a7).view.loc (thr d L) ↦{fullShare} g))

/-- A fetch slot before trip work on piece `n`: the piece's fetch in flight (it will hand back the staging row at some
    contents, and the piece), or, when there is no such piece, the slot idle. -/
def inSlot (a : Memref sig .scVector .vmem S8x3200 .f32) (sm : DmaSem sig) (n : ℕ) : sProp 𝕄 :=
  if valid L n then
    iprop(∃ g, Transfers.Flight countersEmb (thr d L) (SemLoc.dma sm) (default : HIx 22) NN
      iprop((a.view.loc (thr d L) ↦{fullShare} g) ∗ xtPiece d L fx n))
  else iprop((∃ g, a.view.loc (thr d L) ↦{fullShare} g) ∗ semVal (thr d L, SemLoc.dma sm) 0)

/-- A write-out slot before trip work on piece `m`: piece `m - 2`'s write-out in flight (it will hand back that piece
    of the result at some contents, and the staging window), the rest of the staging buffer beside it; or idle. -/
def outSlot (a : Memref sig .scVector .vmem S25600 .f32) (sm : DmaSem sig) (m : ℕ) : sProp 𝕄 :=
  if 2 ≤ m ∧ valid L (m - 2) then
    iprop(∃ g, Transfers.Flight countersEmb (thr d L) (SemLoc.dma sm) (default : HIx 22) NN
        iprop(oPiece d L (m - 2) ∗ ((stg a).view.loc (thr d L) ↦[(stg a).view.set]{fullShare} g))
      ∗ (a.view.loc (thr d L) ↦[Finset.univ \ (stg a).view.set]{fullShare} g))
  else iprop((∃ g, a.view.loc (thr d L) ↦{fullShare} g) ∗ semVal (thr d L, SemLoc.dma sm) 0)

/-- Piece `n` when it exists, nothing otherwise. -/
def xP (n : ℕ) : sProp 𝕄 := if valid L n then xtPiece d L fx n else iprop(emp)
def oP (n : ℕ) : sProp 𝕄 := if valid L n then oPiece d L n else iprop(emp)

/-- What the tile holds outside the slots before trip `t`: every piece of the argument row but those being fetched
    (`2t`, `2t + 1`), every piece of the result but those being written out (`2t - 2`, `2t - 1`). -/
def xSet (t : ℕ) : Finset ℕ := (Finset.range 18).filter fun n => n ≠ 2 * t ∧ n ≠ 2 * t + 1
def oSet (t : ℕ) : Finset ℕ := (Finset.range 18).filter fun n => n + 2 ≠ 2 * t ∧ n + 2 ≠ 2 * t + 1

def inv (t : ℕ) (_ : PUnit) : sProp 𝕄 :=
  iprop(Transfers.MayWaits (thr d L) (none : HIx 22) O
    ∗ (∃ W', ⌜∀ p ∈ W', p ∈ W ∨ p.2 = none⌝ ∗ owes (thr d L) O W')
    ∗ bigSep (xSet t) (xP d L fx) ∗ bigSep (oSet t) (oP d L)
    ∗ inSlot d L fx a4 cc3_scratch4.sem (2 * t) ∗ outSlot d L a6 cc3_scratch6.sem (2 * t)
    ∗ inSlot d L fx a5 cc3_scratch5.sem (2 * t + 1) ∗ outSlot d L a7 cc3_scratch7.sem (2 * t + 1))

omit [FloatOps F] in
theorem two_out {Φ : ℕ → sProp 𝕄} {s : Finset ℕ} {a b : ℕ} (ha : a ∈ s) (hb : b ∈ s) (hab : a ≠ b) :
    bigSep s Φ = iprop(Φ a ∗ Φ b ∗ bigSep ((s.erase a).erase b) Φ) := by
  rw [SparseCore.bigSep_erase' ha, SparseCore.bigSep_erase' (Finset.mem_erase.mpr ⟨fun e => hab e.symm, hb⟩)]

omit [FloatOps F] in
theorem range18_split : (Finset.range 18) = insert 0 (insert 1 (xSet 0)) := by decide

theorem xRange_split (v0 : valid L 0) (v1 : valid L 1) :
    bigSep (Finset.range 18) (xP d L fx) = iprop(xtPiece d L fx 0 ∗ xtPiece d L fx 1 ∗ bigSep (xSet 0) (xP d L fx)) := by
  rw [range18_split, SparseCore.bigSep_insert' (by decide), SparseCore.bigSep_insert' (by decide)]
  unfold xP; rw [if_pos v0, if_pos v1]
omit [FloatOps F] in
theorem oSet_zero : oSet 0 = Finset.range 18 := by decide

theorem inSlot_pos {a : Memref sig .scVector .vmem S8x3200 .f32} {sm : DmaSem sig} {n : ℕ} (v : valid L n) :
    inSlot d L fx a sm n = iprop(∃ g, Transfers.Flight countersEmb (thr d L) (SemLoc.dma sm) (default : HIx 22) NN
      iprop((a.view.loc (thr d L) ↦{fullShare} g) ∗ xtPiece d L fx n)) := by unfold inSlot; rw [if_pos v]
theorem inSlot_neg {a : Memref sig .scVector .vmem S8x3200 .f32} {sm : DmaSem sig} {n : ℕ} (v : ¬ valid L n) :
    inSlot d L fx a sm n = iprop((∃ g, a.view.loc (thr d L) ↦{fullShare} g) ∗ semVal (thr d L, SemLoc.dma sm) 0) := by
  unfold inSlot; rw [if_neg v]
theorem outSlot_pos {a : Memref sig .scVector .vmem S25600 .f32} {sm : DmaSem sig} {m : ℕ} (h : 2 ≤ m ∧ valid L (m - 2)) :
    outSlot (F := F) d L a sm m = iprop(∃ g, Transfers.Flight countersEmb (thr d L) (SemLoc.dma sm) (default : HIx 22) NN
        iprop(oPiece (F := F) d L (m - 2) ∗ ((stg a).view.loc (thr d L) ↦[(stg a).view.set]{fullShare} g))
      ∗ (a.view.loc (thr d L) ↦[Finset.univ \ (stg a).view.set]{fullShare} g)) := by unfold outSlot; rw [if_pos h]
theorem outSlot_neg {a : Memref sig .scVector .vmem S25600 .f32} {sm : DmaSem sig} {m : ℕ} (h : ¬ (2 ≤ m ∧ valid L (m - 2))) :
    outSlot (F := F) d L a sm m = iprop((∃ g, a.view.loc (thr d L) ↦{fullShare} g) ∗ semVal (thr d L, SemLoc.dma sm) 0) := by
  unfold outSlot; rw [if_neg h]

/-- A fetch in flight, its source window spelt by any offsets equal to piece `n`'s, fills the fetch slot for `n`. -/
theorem fl_in {off : Fin 2 → ℕ} {n : ℕ} (h : off = ![3, pos L n]) (p : ∀ a, off a + S1x3200.size a ≤ S22x1600000.size a) (v : valid L n)
    (a : Memref sig .scVector .vmem S8x3200 .f32) (sm : DmaSem sig) :
    (iprop(∃ g, Transfers.Flight countersEmb (thr d L) (SemLoc.dma sm) (default : HIx 22) NN
        iprop((a.view.loc (thr d L) ↦{fullShare} g)
          ∗ (((xtW).slice (Rect.unit (s := S22x1600000) off S1x3200.size p) (fun _ => rfl)).view.loc (thr d L)
              ↦[((xtW).slice (Rect.unit (s := S22x1600000) off S1x3200.size p) (fun _ => rfl)).view.set]{fullShare} fx))) : sProp 𝕄)
      ⊢ inSlot d L fx a sm n := by
  rw [inSlot_pos d L fx v]
  iintro ⟨%g, H⟩
  have hD : (iprop((a.view.loc (thr d L) ↦{fullShare} g)
          ∗ (((xtW).slice (Rect.unit (s := S22x1600000) off S1x3200.size p) (fun _ => rfl)).view.loc (thr d L)
              ↦[((xtW).slice (Rect.unit (s := S22x1600000) off S1x3200.size p) (fun _ => rfl)).view.set]{fullShare} fx)) : sProp 𝕄)
      ⊢ iprop((a.view.loc (thr d L) ↦{fullShare} g) ∗ xtPiece d L fx n) := by
    iintro ⟨H1, H2⟩
    isplitl [H1]; · iexact H1
    iapply (Entails.of_eq (in_congr d L h p (in_inb L n) fx)); iexact H2
  iexists g
  iapply (Transfers.Flight_mono countersEmb (thr d L) hD); iexact H

/-- A write-out in flight, its destination window spelt by any offsets equal to piece `n`'s, with the rest of the
    staging buffer, fills the write-out slot for `n + 2`. -/
theorem fl_out {off : Fin 1 → ℕ} {n : ℕ} (h : off = ![pos L n]) (p : ∀ a, off a + S3200.size a ≤ S1600000.size a) (v : valid L n)
    (a : Memref sig .scVector .vmem S25600 .f32) (sm : DmaSem sig) :
    (iprop(∃ (f : Buf (Elt F) ((oW).view.loc (thr d L))) (g : Buf (Elt F) (a.view.loc (thr d L))), Transfers.Flight countersEmb (thr d L) (SemLoc.dma sm) (default : HIx 22) NN
        iprop((((oW).slice (Rect.unit (s := S1600000) off S3200.size p) (fun _ => rfl)).view.loc (thr d L)
              ↦[((oW).slice (Rect.unit (s := S1600000) off S3200.size p) (fun _ => rfl)).view.set]{fullShare} f)
          ∗ ((stg a).view.loc (thr d L) ↦[(stg a).view.set]{fullShare} g))
        ∗ (a.view.loc (thr d L) ↦[Finset.univ \ (stg a).view.set]{fullShare} g)) : sProp 𝕄)
      ⊢ outSlot (F := F) d L a sm (n + 2) := by
  rw [outSlot_pos (F := F) d L (m := n + 2) ⟨by omega, by simpa using v⟩]
  iintro ⟨%f, %g, H, R⟩
  have hD : (iprop((((oW).slice (Rect.unit (s := S1600000) off S3200.size p) (fun _ => rfl)).view.loc (thr d L)
              ↦[((oW).slice (Rect.unit (s := S1600000) off S3200.size p) (fun _ => rfl)).view.set]{fullShare} f)
          ∗ ((stg a).view.loc (thr d L) ↦[(stg a).view.set]{fullShare} g)) : sProp 𝕄)
      ⊢ iprop(oPiece (F := F) d L (n + 2 - 2) ∗ ((stg a).view.loc (thr d L) ↦[(stg a).view.set]{fullShare} g)) := by
    rw [Nat.add_sub_cancel]
    iintro ⟨H1, H2⟩
    isplitl [H1]
    · iexists f; iapply (Entails.of_eq (out_congr d L h p (out_inb L n) f)); iexact H1
    · iexact H2
  iexists g
  isplitl [H]
  · iapply (Transfers.Flight_mono countersEmb (thr d L) hD); iexact H
  · iexact R

/-! The pieces outside the slots, from one trip to the next. -/
def xCore (k : ℕ) : Finset ℕ := (Finset.range 18).filter fun n => n ≠ 2 * k ∧ n ≠ 2 * k + 1 ∧ n ≠ 2 * k + 2 ∧ n ≠ 2 * k + 3
def oCore (k : ℕ) : Finset ℕ := (Finset.range 18).filter fun n => n + 2 ≠ 2 * k ∧ n + 2 ≠ 2 * k + 1 ∧ n ≠ 2 * k ∧ n ≠ 2 * k + 1

omit [FloatOps F] in
theorem xSet_out (Φ : ℕ → sProp 𝕄) (k : ℕ) (hk : k < 8) : bigSep (xSet k) Φ = iprop(Φ (2 * k + 2) ∗ Φ (2 * k + 3) ∗ bigSep (xCore k) Φ) := by
  have e : ((xSet k).erase (2 * k + 2)).erase (2 * k + 3) = xCore k := by
    ext n; simp only [xSet, xCore, Finset.mem_erase, Finset.mem_filter, Finset.mem_range]; omega
  rw [← e]; exact two_out (by simp only [xSet, Finset.mem_filter, Finset.mem_range]; omega) (by simp only [xSet, Finset.mem_filter, Finset.mem_range]; omega) (by omega)
omit [FloatOps F] in
theorem xSet_in (Φ : ℕ → sProp 𝕄) (k : ℕ) (hk : k < 8) : bigSep (xSet (k + 1)) Φ = iprop(Φ (2 * k) ∗ Φ (2 * k + 1) ∗ bigSep (xCore k) Φ) := by
  have e : ((xSet (k + 1)).erase (2 * k)).erase (2 * k + 1) = xCore k := by
    ext n; simp only [xSet, xCore, Finset.mem_erase, Finset.mem_filter, Finset.mem_range]; omega
  rw [← e]; exact two_out (by simp only [xSet, Finset.mem_filter, Finset.mem_range]; omega) (by simp only [xSet, Finset.mem_filter, Finset.mem_range]; omega) (by omega)
omit [FloatOps F] in
theorem oSet_out (Φ : ℕ → sProp 𝕄) (k : ℕ) (hk : k < 8) : bigSep (oSet k) Φ = iprop(Φ (2 * k) ∗ Φ (2 * k + 1) ∗ bigSep (oCore k) Φ) := by
  have e : ((oSet k).erase (2 * k)).erase (2 * k + 1) = oCore k := by
    ext n; simp only [oSet, oCore, Finset.mem_erase, Finset.mem_filter, Finset.mem_range]; omega
  rw [← e]; exact two_out (by simp only [oSet, Finset.mem_filter, Finset.mem_range]; omega) (by simp only [oSet, Finset.mem_filter, Finset.mem_range]; omega) (by omega)
omit [FloatOps F] in
theorem oSet_in (Φ : ℕ → sProp 𝕄) (k : ℕ) (hk : k < 8) (hk1 : 1 ≤ k) :
    bigSep (oSet (k + 1)) Φ = iprop(Φ (2 * k - 2) ∗ Φ (2 * k - 1) ∗ bigSep (oCore k) Φ) := by
  have e : ((oSet (k + 1)).erase (2 * k - 2)).erase (2 * k - 1) = oCore k := by
    ext n; simp only [oSet, oCore, Finset.mem_erase, Finset.mem_filter, Finset.mem_range]; omega
  rw [← e]; exact two_out (by simp only [oSet, Finset.mem_filter, Finset.mem_range]; omega) (by simp only [oSet, Finset.mem_filter, Finset.mem_range]; omega) (by omega)

theorem xP_pos {n : ℕ} (v : valid L n) : xP d L fx n = xtPiece d L fx n := if_pos v
theorem oP_pos {n : ℕ} (v : valid L n) : oP (F := F) d L n = oPiece (F := F) d L n := if_pos v
theorem xP_neg {n : ℕ} (v : ¬ valid L n) : xP d L fx n = iprop(emp) := if_neg v
theorem oP_neg {n : ℕ} (v : ¬ valid L n) : oP (F := F) d L n = iprop(emp) := if_neg v

/-- Piece `n` of the result at its final contents: row 3 of the transposed argument. -/
def oQ (n : ℕ) : sProp 𝕄 :=
  if valid L n then (outM L n).view.loc (thr d L) ↦[(outM L n).view.set]{fullShare} (Cert.Spec.row 3 fx) else iprop(emp)

/-- What a tile is handed for the call: its pieces of row 3 of the transposed argument, at the argument's contents, and
    its pieces of the result at some contents. What it hands back: the same pieces of the argument, and its pieces of
    the result holding the row. -/
def goRes : sProp 𝕄 := iprop(bigSep (Finset.range 18) (xP d L fx) ∗ bigSep (Finset.range 18) (oP (F := F) d L))
def tdRes : sProp 𝕄 := iprop(bigSep (Finset.range 18) (xP d L fx) ∗ bigSep (Finset.range 18) (oQ d L fx))

end Tile

end Cert.Proof.TileK3

end
-- ==== Proof.TileK4Defs.lean ====
/-
  One vector subcore's task of copy kernel 4 (counting from 0): definitions. The task moves its pieces of row 4 of the
  transposed argument (pieces of 3200 consecutive elements, piece number 2·s + c + 32·n for the subcore (c, s) and
  n = 0, 1, … while that number is below 500) into the flat result: each piece is fetched into a staging row, copied
  16 lanes at a time into a flat staging buffer, and written out, two pieces in flight at a time. Here: the pieces as
  memrefs, the program's own spellings of them, the printed conditions as facts about the trip, the two slots' states
  between trips, and what the tile holds outside the slots.
-/
import proofs.«206869_g37898791420194_cont_8to1_b_558_20_alg».proof.Defs
import Idealize.ShloMosaic.Lib.SparseCore.Launch
import Idealize.ShloMosaic.Lib.StableHlo.Run
import Idealize.ShloMosaic.Lib.Pipeline.Kit
import Idealize.ShloMosaic.Lib.Tactic
import proofs.«206869_g37898791420194_cont_8to1_b_558_20_alg».proof.Proof.Gen.KernelIdeal
import proofs.«206869_g37898791420194_cont_8to1_b_558_20_alg».proof.Proof.Gen.KernelIdeal.Skeleton
import proofs.«206869_g37898791420194_cont_8to1_b_558_20_alg».proof.Proof.Spec

noncomputable section

namespace Cert.Proof.TileK4

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

abbrev ΛP : Labels := Pipeline.Sig Λ₀ (Fin 0) fun p => (pcfgs (F := F) p).Adm
abbrev K : SparseCore.Cfg τ sig (ΛP (F := F)) 22 := sc (F := F)
abbrev 𝒱₀ : Variants := Variants.none

abbrev UH : Type := URounds (GSem nD τ sig) ℕ
abbrev UU : Type := UH × Counters

local notation "𝕄" => MT nD τ sig (HIx 22) (Elt F) ℕ UU ℕ

local notation "xtW" => (Memref.whole Cert.KernelIdeal.main_v0_scv : Memref Cert.KernelIdeal.sig Kind.scVector Space.hbm Cert.KernelIdeal.S22x1600000 EltTy.f32)
local notation "oW" => (Memref.whole Cert.KernelIdeal.main_v5_scv : Memref Cert.KernelIdeal.sig Kind.scVector Space.hbm Cert.KernelIdeal.S1600000 EltTy.f32)
local notation "a4" => (Memref.whole Cert.KernelIdeal.cc4_scratch0 : Memref Cert.KernelIdeal.sig Kind.scVector Space.vmem Cert.KernelIdeal.S8x3200 EltTy.f32)
local notation "a5" => (Memref.whole Cert.KernelIdeal.cc4_scratch1 : Memref Cert.KernelIdeal.sig Kind.scVector Space.vmem Cert.KernelIdeal.S8x3200 EltTy.f32)
local notation "a6" => (Memref.whole Cert.KernelIdeal.cc4_scratch2 : Memref Cert.KernelIdeal.sig Kind.scVector Space.vmem Cert.KernelIdeal.S25600 EltTy.f32)
local notation "a7" => (Memref.whole Cert.KernelIdeal.cc4_scratch3 : Memref Cert.KernelIdeal.sig Kind.scVector Space.vmem Cert.KernelIdeal.S25600 EltTy.f32)

variable [FloatOps F]

section Tile

variable (d : Dev nD) (L : grid4.Coords)

abbrev cV (L : grid4.Coords) : Fin τ.nSC := (L 0).castLE hcore4
abbrev jV (L : grid4.Coords) : Fin τ.nSub := (L 1).castLE hsub4
abbrev thr (d : Dev nD) (L : grid4.Coords) : Thread nD τ := V d (cV L) (jV L)

/-- The tile's number 2·s + c, and whether it has sixteen pieces (numbers below 20) or fifteen. -/
abbrev wid (L : grid4.Coords) : ℕ := 2 * (L 1).val + (L 0).val
abbrev big (L : grid4.Coords) : Prop := wid L < 20

omit [FloatOps F] in
theorem wid_lt (L : grid4.Coords) : wid L < 32 := by
  have h0 : (L 0).val < 2 := (L 0).isLt
  have h1 : (L 1).val < 16 := (L 1).isLt
  unfold wid; omega

/-- Piece `n` of the tile exists: `n < 15`, or `n = 15` on a tile with sixteen pieces. It is the piece number
    `wid + 32·n < 500` of the row. -/
def valid (L : grid4.Coords) (n : ℕ) : Prop := n < 15 ∨ (n = 15 ∧ big L)
instance (L : grid4.Coords) (n : ℕ) : Decidable (valid L n) := by unfold valid big; infer_instance

omit [FloatOps F] in
theorem valid_iff (L : grid4.Coords) (n : ℕ) : valid L n ↔ wid L + 32 * n < 500 := by
  have := wid_lt L; unfold valid big; omega

/-- Where piece `n` starts in the row (clamped to the last piece of the row, so that the rectangle is in bounds for
    every `n`; for a valid piece the clamp is idle). -/
abbrev pos (L : grid4.Coords) (n : ℕ) : ℕ := 3200 * min (wid L + 32 * n) 499

omit [FloatOps F] in
theorem pos_valid {L : grid4.Coords} {n : ℕ} (h : valid L n) : pos L n = 6400 * (L 1).val + 3200 * (L 0).val + 102400 * n := by
  have := (valid_iff L n).mp h; unfold pos wid at *; omega

omit [FloatOps F] in
theorem in_inb (L : grid4.Coords) (n : ℕ) : ∀ a, (![4, pos L n] : Fin 2 → ℕ) a + S1x3200.size a ≤ S22x1600000.size a := by
  intro a; fin_cases a
  · show 4 + 1 ≤ 22; omega
  · show pos L n + 3200 ≤ 1600000; unfold pos; omega
omit [FloatOps F] in
theorem out_inb (L : grid4.Coords) (n : ℕ) : ∀ a, (![pos L n] : Fin 1 → ℕ) a + S3200.size a ≤ S1600000.size a := by
  intro a; fin_cases a
  show pos L n + 3200 ≤ 1600000; unfold pos; omega

/-- Piece `n` of row 4 of the transposed argument, and piece `n` of the flat result, as memrefs of the tile. -/
abbrev inM (L : grid4.Coords) (n : ℕ) : Memref sig .scVector .hbm S1x3200 .f32 :=
  (xtW).slice (Rect.unit (s := S22x1600000) ![4, pos L n] S1x3200.size (in_inb L n)) (fun _ => rfl)
abbrev outM (L : grid4.Coords) (n : ℕ) : Memref sig .scVector .hbm S3200 .f32 :=
  (oW).slice (Rect.unit (s := S1600000) ![pos L n] S3200.size (out_inb L n)) (fun _ => rfl)

/-! The program's own slices are these pieces: by the closed forms of its offset functions. -/

omit [FloatOps F] in
theorem off2 {a b : ℕ} (h : a = b) : (![4, a] : Fin 2 → ℕ) = ![4, b] := by rw [h]
omit [FloatOps F] in
theorem off1' {a b : ℕ} (h : a = b) : (![a] : Fin 1 → ℕ) = ![b] := by rw [h]

omit [FloatOps F] in
theorem off_in0 (L : grid4.Coords) (h : valid L 0) : k4_off1 L 0#32 = ![4, pos L 0] :=
  (k4_off1_eq L 0).trans (off2 (by rw [pos_valid h]; simp))
omit [FloatOps F] in
theorem off_in1 (L : grid4.Coords) (h : valid L 1) : k4_off1 L 32#32 = ![4, pos L 1] :=
  (k4_off1_eq L 1).trans (off2 (by rw [pos_valid h]; simp))
omit [FloatOps F] in
theorem off_6 (L : grid4.Coords) (t : Fin k4_t1_loop.trips) (h : valid L (2 * t.val + 2)) : k4_off6 L t = ![4, pos L (2 * t.val + 2)] :=
  (k4_off6_eq L t).trans (off2 (by rw [pos_valid h]; omega))
omit [FloatOps F] in
theorem off_11 (L : grid4.Coords) (t : Fin k4_t1_loop.trips) (h : valid L (2 * t.val + 3)) : k4_off11 L t = ![4, pos L (2 * t.val + 3)] :=
  (k4_off11_eq L t).trans (off2 (by rw [pos_valid h]; omega))
omit [FloatOps F] in
theorem off_5 (L : grid4.Coords) (t : Fin k4_t1_loop.trips) (h : valid L (2 * t.val)) : k4_off5 L t = ![pos L (2 * t.val)] :=
  (k4_off5_eq L t).trans (off1' (by rw [pos_valid h]; omega))
omit [FloatOps F] in
theorem off_10 (L : grid4.Coords) (t : Fin k4_t1_loop.trips) (h : valid L (2 * t.val + 1)) : k4_off10 L t = ![pos L (2 * t.val + 1)] :=
  (k4_off10_eq L t).trans (off1' (by rw [pos_valid h]; omega))

/-- Holding a 1 × 3200 window of the transposed argument, or a 3200 window of the result, by exactly its elements
    says the same whichever way the window's offsets are spelt. -/
theorem in_congr {off off' : Fin 2 → ℕ} (h : off = off') (p : ∀ a, off a + S1x3200.size a ≤ S22x1600000.size a)
    (p' : ∀ a, off' a + S1x3200.size a ≤ S22x1600000.size a) (f : Buf (Elt F) ((xtW).view.loc (thr d L))) :
    (((xtW).slice (Rect.unit (s := S22x1600000) off S1x3200.size p) (fun _ => rfl)).view.loc (thr d L)
        ↦[((xtW).slice (Rect.unit (s := S22x1600000) off S1x3200.size p) (fun _ => rfl)).view.set]{fullShare} f : sProp 𝕄)
      = (((xtW).slice (Rect.unit (s := S22x1600000) off' S1x3200.size p') (fun _ => rfl)).view.loc (thr d L)
        ↦[((xtW).slice (Rect.unit (s := S22x1600000) off' S1x3200.size p') (fun _ => rfl)).view.set]{fullShare} f) := by
  subst h; rfl
theorem out_congr {off off' : Fin 1 → ℕ} (h : off = off') (p : ∀ a, off a + S3200.size a ≤ S1600000.size a)
    (p' : ∀ a, off' a + S3200.size a ≤ S1600000.size a) (f : Buf (Elt F) ((oW).view.loc (thr d L))) :
    (((oW).slice (Rect.unit (s := S1600000) off S3200.size p) (fun _ => rfl)).view.loc (thr d L)
        ↦[((oW).slice (Rect.unit (s := S1600000) off S3200.size p) (fun _ => rfl)).view.set]{fullShare} f : sProp 𝕄)
      = (((oW).slice (Rect.unit (s := S1600000) off' S3200.size p') (fun _ => rfl)).view.loc (thr d L)
        ↦[((oW).slice (Rect.unit (s := S1600000) off' S3200.size p') (fun _ => rfl)).view.set]{fullShare} f) := by
  subst h; rfl

/-! The printed conditions, as facts about the trip and the tile. -/

omit [FloatOps F] in
theorem trips1 : k4_t1_loop.trips = 8 := by decide
omit [FloatOps F] in
theorem cond1_iff : ∀ (t : Fin k4_t1_loop.trips), k4_cond1 t = 1#1 ↔ 1 ≤ t.val := by decide +kernel
omit [FloatOps F] in
theorem cond2_iff : ∀ (L : grid4.Coords) (t : Fin k4_t1_loop.trips), k4_cond2 L t = 1#1 := by decide +kernel
omit [FloatOps F] in
theorem cond3_iff : ∀ (L : grid4.Coords) (t : Fin k4_t1_loop.trips), k4_cond3 L t = 1#1 ↔ t.val ≤ 6 := by decide +kernel
omit [FloatOps F] in
theorem cond4_iff : ∀ (t : Fin k4_t1_loop.trips), k4_cond4 t = 1#1 ↔ 1 ≤ t.val := by decide +kernel
omit [FloatOps F] in
theorem cond5_iff : ∀ (L : grid4.Coords) (t : Fin k4_t1_loop.trips), k4_cond5 L t = 1#1 ↔ (t.val ≤ 6 ∨ big L) := by decide +kernel
omit [FloatOps F] in
theorem cond6_iff : ∀ (L : grid4.Coords) (t : Fin k4_t1_loop.trips), k4_cond6 L t = 1#1 ↔ (t.val ≤ 5 ∨ (t.val = 6 ∧ big L)) := by decide +kernel
omit [FloatOps F] in
theorem cond7_iff : ∀ (L : grid4.Coords), k4_cond7 L = 1#1 := by decide +kernel
omit [FloatOps F] in
theorem cond8_iff : ∀ (L : grid4.Coords), k4_cond8 L = 1#1 ↔ big L := by decide +kernel

variable (O : CellTallies nD τ sig (HIx 22)) (W : Waits sig (HIx 22))
variable (fx : Buf (Elt F) ((xtW).view.loc (thr d L)))

abbrev NN : ℕ := 102400

/-- The 3200-element window of a flat staging buffer that a piece is written out from. -/
abbrev stg (a : Memref sig .scVector .vmem S25600 .f32) : Memref sig .scVector .vmem S3200 .f32 :=
  a.slice (Rect.unit (s := S25600) ![0] S3200.size inb_S25600_S3200_0) (fun _ => rfl)

/-- Piece `n` of the argument row held by exactly its elements, at the argument's contents; piece `n` of the result
    held by exactly its elements, at some contents. -/
abbrev xtPiece (n : ℕ) : sProp 𝕄 := (inM L n).view.loc (thr d L) ↦[(inM L n).view.set]{fullShare} fx
abbrev oPiece (n : ℕ) : sProp 𝕄 := iprop(∃ f, (outM L n).view.loc (thr d L) ↦[(outM L n).view.set]{fullShare} f)

/-- The lane-copy loop of a slot: the staging row keeps its contents, the flat staging buffer holds some contents. -/
def laneInv0 (g4 : Buf (Elt F) ((a4).view.loc (thr d L))) (_ : ℕ) (_ : PUnit) : sProp 𝕄 :=
  iprop(((a4).view.loc (thr d L) ↦{fullShare} g4) ∗ (∃ g, (a6).view.loc (thr d L) ↦{fullShare} g))
def laneInv1 (g5 : Buf (Elt F) ((a5).view.loc (thr d L))) (_ : ℕ) (_ : PUnit) : sProp 𝕄 :=
  iprop(((a5).view.loc (thr d L) ↦{fullShare} g5) ∗ (∃ g, (a7).view.loc (thr d L) ↦{fullShare} g))

/-- A fetch slot before trip work on piece `n`: the piece's fetch in flight (it will hand back the staging row at some
    contents, and the piece), or, when there is no such piece, the slot idle. -/
def inSlot (a : Memref sig .scVector .vmem S8x3200 .f32) (sm : DmaSem sig) (n : ℕ) : sProp 𝕄 :=
  if valid L n then
    iprop(∃ g, Transfers.Flight countersEmb (thr d L) (SemLoc.dma sm) (default : HIx 22) NN
      iprop((a.view.loc (thr d L) ↦{fullShare} g) ∗ xtPiece d L fx n))
  else iprop((∃ g, a.view.loc (thr d L) ↦{fullShare} g) ∗ semVal (thr d L, SemLoc.dma sm) 0)

/-- A write-out slot before trip work on piece `m`: piece `m - 2`'s write-out in flight (it will hand back that piece
    of the result at some contents, and the staging window), the rest of the staging buffer beside it; or idle. -/
def outSlot (a : Memref sig .scVector .vmem S25600 .f32) (sm : DmaSem sig) (m : ℕ) : sProp 𝕄 :=
  if 2 ≤ m ∧ valid L (m - 2) then
    iprop(∃ g, Transfers.Flight countersEmb (thr d L) (SemLoc.dma sm) (default : HIx 22) NN
        iprop(oPiece d L (m - 2) ∗ ((stg a).view.loc (thr d L) ↦[(stg a).view.set]{fullShare} g))
      ∗ (a.view.loc (thr d L) ↦[Finset.univ \ (stg a).view.set]{fullShare} g))
  else iprop((∃ g, a.view.loc (thr d L) ↦{fullShare} g) ∗ semVal (thr d L, SemLoc.dma sm) 0)

/-- Piece `n` when it exists, nothing otherwise. -/
def xP (n : ℕ) : sProp 𝕄 := if valid L n then xtPiece d L fx n else iprop(emp)
def oP (n : ℕ) : sProp 𝕄 := if valid L n then oPiece d L n else iprop(emp)

/-- What the tile holds outside the slots before trip `t`: every piece of the argument row but those being fetched
    (`2t`, `2t + 1`), every piece of the result but those being written out (`2t - 2`, `2t - 1`). -/
def xSet (t : ℕ) : Finset ℕ := (Finset.range 18).filter fun n => n ≠ 2 * t ∧ n ≠ 2 * t + 1
def oSet (t : ℕ) : Finset ℕ := (Finset.range 18).filter fun n => n + 2 ≠ 2 * t ∧ n + 2 ≠ 2 * t + 1

def inv (t : ℕ) (_ : PUnit) : sProp 𝕄 :=
  iprop(Transfers.MayWaits (thr d L) (none : HIx 22) O
    ∗ (∃ W', ⌜∀ p ∈ W', p ∈ W ∨ p.2 = none⌝ ∗ owes (thr d L) O W')
    ∗ bigSep (xSet t) (xP d L fx) ∗ bigSep (oSet t) (oP d L)
    ∗ inSlot d L fx a4 cc4_scratch4.sem (2 * t) ∗ outSlot d L a6 cc4_scratch6.sem (2 * t)
    ∗ inSlot d L fx a5 cc4_scratch5.sem (2 * t + 1) ∗ outSlot d L a7 cc4_scratch7.sem (2 * t + 1))

omit [FloatOps F] in
theorem two_out {Φ : ℕ → sProp 𝕄} {s : Finset ℕ} {a b : ℕ} (ha : a ∈ s) (hb : b ∈ s) (hab : a ≠ b) :
    bigSep s Φ = iprop(Φ a ∗ Φ b ∗ bigSep ((s.erase a).erase b) Φ) := by
  rw [SparseCore.bigSep_erase' ha, SparseCore.bigSep_erase' (Finset.mem_erase.mpr ⟨fun e => hab e.symm, hb⟩)]

omit [FloatOps F] in
theorem range18_split : (Finset.range 18) = insert 0 (insert 1 (xSet 0)) := by decide

theorem xRange_split (v0 : valid L 0) (v1 : valid L 1) :
    bigSep (Finset.range 18) (xP d L fx) = iprop(xtPiece d L fx 0 ∗ xtPiece d L fx 1 ∗ bigSep (xSet 0) (xP d L fx)) := by
  rw [range18_split, SparseCore.bigSep_insert' (by decide), SparseCore.bigSep_insert' (by decide)]
  unfold xP; rw [if_pos v0, if_pos v1]
omit [FloatOps F] in
theorem oSet_zero : oSet 0 = Finset.range 18 := by decide

theorem inSlot_pos {a : Memref sig .scVector .vmem S8x3200 .f32} {sm : DmaSem sig} {n : ℕ} (v : valid L n) :
    inSlot d L fx a sm n = iprop(∃ g, Transfers.Flight countersEmb (thr d L) (SemLoc.dma sm) (default : HIx 22) NN
      iprop((a.view.loc (thr d L) ↦{fullShare} g) ∗ xtPiece d L fx n)) := by unfold inSlot; rw [if_pos v]
theorem inSlot_neg {a : Memref sig .scVector .vmem S8x3200 .f32} {sm : DmaSem sig} {n : ℕ} (v : ¬ valid L n) :
    inSlot d L fx a sm n = iprop((∃ g, a.view.loc (thr d L) ↦{fullShare} g) ∗ semVal (thr d L, SemLoc.dma sm) 0) := by
  unfold inSlot; rw [if_neg v]
theorem outSlot_pos {a : Memref sig .scVector .vmem S25600 .f32} {sm : DmaSem sig} {m : ℕ} (h : 2 ≤ m ∧ valid L (m - 2)) :
    outSlot (F := F) d L a sm m = iprop(∃ g, Transfers.Flight countersEmb (thr d L) (SemLoc.dma sm) (default : HIx 22) NN
        iprop(oPiece (F := F) d L (m - 2) ∗ ((stg a).view.loc (thr d L) ↦[(stg a).view.set]{fullShare} g))
      ∗ (a.view.loc (thr d L) ↦[Finset.univ \ (stg a).view.set]{fullShare} g)) := by unfold outSlot; rw [if_pos h]
theorem outSlot_neg {a : Memref sig .scVector .vmem S25600 .f32} {sm : DmaSem sig} {m : ℕ} (h : ¬ (2 ≤ m ∧ valid L (m - 2))) :
    outSlot (F := F) d L a sm m = iprop((∃ g, a.view.loc (thr d L) ↦{fullShare} g) ∗ semVal (thr d L, SemLoc.dma sm) 0) := by
  unfold outSlot; rw [if_neg h]

/-- A fetch in flight, its source window spelt by any offsets equal to piece `n`'s, fills the fetch slot for `n`. -/
theorem fl_in {off : Fin 2 → ℕ} {n : ℕ} (h : off = ![4, pos L n]) (p : ∀ a, off a + S1x3200.size a ≤ S22x1600000.size a) (v : valid L n)
    (a : Memref sig .scVector .vmem S8x3200 .f32) (sm : DmaSem sig) :
    (iprop(∃ g, Transfers.Flight countersEmb (thr d L) (SemLoc.dma sm) (default : HIx 22) NN
        iprop((a.view.loc (thr d L) ↦{fullShare} g)
          ∗ (((xtW).slice (Rect.unit (s := S22x1600000) off S1x3200.size p) (fun _ => rfl)).view.loc (thr d L)
              ↦[((xtW).slice (Rect.unit (s := S22x1600000) off S1x3200.size p) (fun _ => rfl)).view.set]{fullShare} fx))) : sProp 𝕄)
      ⊢ inSlot d L fx a sm n := by
  rw [inSlot_pos d L fx v]
  iintro ⟨%g, H⟩
  have hD : (iprop((a.view.loc (thr d L) ↦{fullShare} g)
          ∗ (((xtW).slice (Rect.unit (s := S22x1600000) off S1x3200.size p) (fun _ => rfl)).view.loc (thr d L)
              ↦[((xtW).slice (Rect.unit (s := S22x1600000) off S1x3200.size p) (fun _ => rfl)).view.set]{fullShare} fx)) : sProp 𝕄)
      ⊢ iprop((a.view.loc (thr d L) ↦{fullShare} g) ∗ xtPiece d L fx n) := by
    iintro ⟨H1, H2⟩
    isplitl [H1]; · iexact H1
    iapply (Entails.of_eq (in_congr d L h p (in_inb L n) fx)); iexact H2
  iexists g
  iapply (Transfers.Flight_mono countersEmb (thr d L) hD); iexact H

/-- A write-out in flight, its destination window spelt by any offsets equal to piece `n`'s, with the rest of the
    staging buffer, fills the write-out slot for `n + 2`. -/
theorem fl_out {off : Fin 1 → ℕ} {n : ℕ} (h : off = ![pos L n]) (p : ∀ a, off a + S3200.size a ≤ S1600000.size a) (v : valid L n)
    (a : Memref sig .scVector .vmem S25600 .f32) (sm : DmaSem sig) :
    (iprop(∃ (f : Buf (Elt F) ((oW).view.loc (thr d L))) (g : Buf (Elt F) (a.view.loc (thr d L))), Transfers.Flight countersEmb (thr d L) (SemLoc.dma sm) (default : HIx 22) NN
        iprop((((oW).slice (Rect.unit (s := S1600000) off S3200.size p) (fun _ => rfl)).view.loc (thr d L)
              ↦[((oW).slice (Rect.unit (s := S1600000) off S3200.size p) (fun _ => rfl)).view.set]{fullShare} f)
          ∗ ((stg a).view.loc (thr d L) ↦[(stg a).view.set]{fullShare} g))
        ∗ (a.view.loc (thr d L) ↦[Finset.univ \ (stg a).view.set]{fullShare} g)) : sProp 𝕄)
      ⊢ outSlot (F := F) d L a sm (n + 2) := by
  rw [outSlot_pos (F := F) d L (m := n + 2) ⟨by omega, by simpa using v⟩]
  iintro ⟨%f, %g, H, R⟩
  have hD : (iprop((((oW).slice (Rect.unit (s := S1600000) off S3200.size p) (fun _ => rfl)).view.loc (thr d L)
              ↦[((oW).slice (Rect.unit (s := S1600000) off S3200.size p) (fun _ => rfl)).view.set]{fullShare} f)
          ∗ ((stg a).view.loc (thr d L) ↦[(stg a).view.set]{fullShare} g)) : sProp 𝕄)
      ⊢ iprop(oPiece (F := F) d L (n + 2 - 2) ∗ ((stg a).view.loc (thr d L) ↦[(stg a).view.set]{fullShare} g)) := by
    rw [Nat.add_sub_cancel]
    iintro ⟨H1, H2⟩
    isplitl [H1]
    · iexists f; iapply (Entails.of_eq (out_congr d L h p (out_inb L n) f)); iexact H1
    · iexact H2
  iexists g
  isplitl [H]
  · iapply (Transfers.Flight_mono countersEmb (thr d L) hD); iexact H
  · iexact R

/-! The pieces outside the slots, from one trip to the next. -/
def xCore (k : ℕ) : Finset ℕ := (Finset.range 18).filter fun n => n ≠ 2 * k ∧ n ≠ 2 * k + 1 ∧ n ≠ 2 * k + 2 ∧ n ≠ 2 * k + 3
def oCore (k : ℕ) : Finset ℕ := (Finset.range 18).filter fun n => n + 2 ≠ 2 * k ∧ n + 2 ≠ 2 * k + 1 ∧ n ≠ 2 * k ∧ n ≠ 2 * k + 1

omit [FloatOps F] in
theorem xSet_out (Φ : ℕ → sProp 𝕄) (k : ℕ) (hk : k < 8) : bigSep (xSet k) Φ = iprop(Φ (2 * k + 2) ∗ Φ (2 * k + 3) ∗ bigSep (xCore k) Φ) := by
  have e : ((xSet k).erase (2 * k + 2)).erase (2 * k + 3) = xCore k := by
    ext n; simp only [xSet, xCore, Finset.mem_erase, Finset.mem_filter, Finset.mem_range]; omega
  rw [← e]; exact two_out (by simp only [xSet, Finset.mem_filter, Finset.mem_range]; omega) (by simp only [xSet, Finset.mem_filter, Finset.mem_range]; omega) (by omega)
omit [FloatOps F] in
theorem xSet_in (Φ : ℕ → sProp 𝕄) (k : ℕ) (hk : k < 8) : bigSep (xSet (k + 1)) Φ = iprop(Φ (2 * k) ∗ Φ (2 * k + 1) ∗ bigSep (xCore k) Φ) := by
  have e : ((xSet (k + 1)).erase (2 * k)).erase (2 * k + 1) = xCore k := by
    ext n; simp only [xSet, xCore, Finset.mem_erase, Finset.mem_filter, Finset.mem_range]; omega
  rw [← e]; exact two_out (by simp only [xSet, Finset.mem_filter, Finset.mem_range]; omega) (by simp only [xSet, Finset.mem_filter, Finset.mem_range]; omega) (by omega)
omit [FloatOps F] in
theorem oSet_out (Φ : ℕ → sProp 𝕄) (k : ℕ) (hk : k < 8) : bigSep (oSet k) Φ = iprop(Φ (2 * k) ∗ Φ (2 * k + 1) ∗ bigSep (oCore k) Φ) := by
  have e : ((oSet k).erase (2 * k)).erase (2 * k + 1) = oCore k := by
    ext n; simp only [oSet, oCore, Finset.mem_erase, Finset.mem_filter, Finset.mem_range]; omega
  rw [← e]; exact two_out (by simp only [oSet, Finset.mem_filter, Finset.mem_range]; omega) (by simp only [oSet, Finset.mem_filter, Finset.mem_range]; omega) (by omega)
omit [FloatOps F] in
theorem oSet_in (Φ : ℕ → sProp 𝕄) (k : ℕ) (hk : k < 8) (hk1 : 1 ≤ k) :
    bigSep (oSet (k + 1)) Φ = iprop(Φ (2 * k - 2) ∗ Φ (2 * k - 1) ∗ bigSep (oCore k) Φ) := by
  have e : ((oSet (k + 1)).erase (2 * k - 2)).erase (2 * k - 1) = oCore k := by
    ext n; simp only [oSet, oCore, Finset.mem_erase, Finset.mem_filter, Finset.mem_range]; omega
  rw [← e]; exact two_out (by simp only [oSet, Finset.mem_filter, Finset.mem_range]; omega) (by simp only [oSet, Finset.mem_filter, Finset.mem_range]; omega) (by omega)

theorem xP_pos {n : ℕ} (v : valid L n) : xP d L fx n = xtPiece d L fx n := if_pos v
theorem oP_pos {n : ℕ} (v : valid L n) : oP (F := F) d L n = oPiece (F := F) d L n := if_pos v
theorem xP_neg {n : ℕ} (v : ¬ valid L n) : xP d L fx n = iprop(emp) := if_neg v
theorem oP_neg {n : ℕ} (v : ¬ valid L n) : oP (F := F) d L n = iprop(emp) := if_neg v

/-- Piece `n` of the result at its final contents: row 4 of the transposed argument. -/
def oQ (n : ℕ) : sProp 𝕄 :=
  if valid L n then (outM L n).view.loc (thr d L) ↦[(outM L n).view.set]{fullShare} (Cert.Spec.row 4 fx) else iprop(emp)

/-- What a tile is handed for the call: its pieces of row 4 of the transposed argument, at the argument's contents, and
    its pieces of the result at some contents. What it hands back: the same pieces of the argument, and its pieces of
    the result holding the row. -/
def goRes : sProp 𝕄 := iprop(bigSep (Finset.range 18) (xP d L fx) ∗ bigSep (Finset.range 18) (oP (F := F) d L))
def tdRes : sProp 𝕄 := iprop(bigSep (Finset.range 18) (xP d L fx) ∗ bigSep (Finset.range 18) (oQ d L fx))

end Tile

end Cert.Proof.TileK4

end
-- ==== Proof.TileK5Defs.lean ====
/-
  One vector subcore's task of copy kernel 5 (counting from 0): definitions. The task moves its pieces of row 5 of the
  transposed argument (pieces of 3200 consecutive elements, piece number 2·s + c + 32·n for the subcore (c, s) and
  n = 0, 1, … while that number is below 500) into the flat result: each piece is fetched into a staging row, copied
  16 lanes at a time into a flat staging buffer, and written out, two pieces in flight at a time. Here: the pieces as
  memrefs, the program's own spellings of them, the printed conditions as facts about the trip, the two slots' states
  between trips, and what the tile holds outside the slots.
-/
import proofs.«206869_g37898791420194_cont_8to1_b_558_20_alg».proof.Defs
import Idealize.ShloMosaic.Lib.SparseCore.Launch
import Idealize.ShloMosaic.Lib.StableHlo.Run
import Idealize.ShloMosaic.Lib.Pipeline.Kit
import Idealize.ShloMosaic.Lib.Tactic
import proofs.«206869_g37898791420194_cont_8to1_b_558_20_alg».proof.Proof.Gen.KernelIdeal
import proofs.«206869_g37898791420194_cont_8to1_b_558_20_alg».proof.Proof.Gen.KernelIdeal.Skeleton
import proofs.«206869_g37898791420194_cont_8to1_b_558_20_alg».proof.Proof.Spec

noncomputable section

namespace Cert.Proof.TileK5

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

abbrev ΛP : Labels := Pipeline.Sig Λ₀ (Fin 0) fun p => (pcfgs (F := F) p).Adm
abbrev K : SparseCore.Cfg τ sig (ΛP (F := F)) 22 := sc (F := F)
abbrev 𝒱₀ : Variants := Variants.none

abbrev UH : Type := URounds (GSem nD τ sig) ℕ
abbrev UU : Type := UH × Counters

local notation "𝕄" => MT nD τ sig (HIx 22) (Elt F) ℕ UU ℕ

local notation "xtW" => (Memref.whole Cert.KernelIdeal.main_v0_scv : Memref Cert.KernelIdeal.sig Kind.scVector Space.hbm Cert.KernelIdeal.S22x1600000 EltTy.f32)
local notation "oW" => (Memref.whole Cert.KernelIdeal.main_v6_scv : Memref Cert.KernelIdeal.sig Kind.scVector Space.hbm Cert.KernelIdeal.S1600000 EltTy.f32)
local notation "a4" => (Memref.whole Cert.KernelIdeal.cc5_scratch0 : Memref Cert.KernelIdeal.sig Kind.scVector Space.vmem Cert.KernelIdeal.S8x3200 EltTy.f32)
local notation "a5" => (Memref.whole Cert.KernelIdeal.cc5_scratch1 : Memref Cert.KernelIdeal.sig Kind.scVector Space.vmem Cert.KernelIdeal.S8x3200 EltTy.f32)
local notation "a6" => (Memref.whole Cert.KernelIdeal.cc5_scratch2 : Memref Cert.KernelIdeal.sig Kind.scVector Space.vmem Cert.KernelIdeal.S25600 EltTy.f32)
local notation "a7" => (Memref.whole Cert.KernelIdeal.cc5_scratch3 : Memref Cert.KernelIdeal.sig Kind.scVector Space.vmem Cert.KernelIdeal.S25600 EltTy.f32)

variable [FloatOps F]

section Tile

variable (d : Dev nD) (L : grid5.Coords)

abbrev cV (L : grid5.Coords) : Fin τ.nSC := (L 0).castLE hcore5
abbrev jV (L : grid5.Coords) : Fin τ.nSub := (L 1).castLE hsub5
abbrev thr (d : Dev nD) (L : grid5.Coords) : Thread nD τ := V d (cV L) (jV L)

/-- The tile's number 2·s + c, and whether it has sixteen pieces (numbers below 20) or fifteen. -/
abbrev wid (L : grid5.Coords) : ℕ := 2 * (L 1).val + (L 0).val
abbrev big (L : grid5.Coords) : Prop := wid L < 20

omit [FloatOps F] in
theorem wid_lt (L : grid5.Coords) : wid L < 32 := by
  have h0 : (L 0).val < 2 := (L 0).isLt
  have h1 : (L 1).val < 16 := (L 1).isLt
  unfold wid; omega

/-- Piece `n` of the tile exists: `n < 15`, or `n = 15` on a tile with sixteen pieces. It is the piece number
    `wid + 32·n < 500` of the row. -/
def valid (L : grid5.Coords) (n : ℕ) : Prop := n < 15 ∨ (n = 15 ∧ big L)
instance (L : grid5.Coords) (n : ℕ) : Decidable (valid L n) := by unfold valid big; infer_instance

omit [FloatOps F] in
theorem valid_iff (L : grid5.Coords) (n : ℕ) : valid L n ↔ wid L + 32 * n < 500 := by
  have := wid_lt L; unfold valid big; omega

/-- Where piece `n` starts in the row (clamped to the last piece of the row, so that the rectangle is in bounds for
    every `n`; for a valid piece the clamp is idle). -/
abbrev pos (L : grid5.Coords) (n : ℕ) : ℕ := 3200 * min (wid L + 32 * n) 499

omit [FloatOps F] in
theorem pos_valid {L : grid5.Coords} {n : ℕ} (h : valid L n) : pos L n = 6400 * (L 1).val + 3200 * (L 0).val + 102400 * n := by
  have := (valid_iff L n).mp h; unfold pos wid at *; omega

omit [FloatOps F] in
theorem in_inb (L : grid5.Coords) (n : ℕ) : ∀ a, (![5, pos L n] : Fin 2 → ℕ) a + S1x3200.size a ≤ S22x1600000.size a := by
  intro a; fin_cases a
  · show 5 + 1 ≤ 22; omega
  · show pos L n + 3200 ≤ 1600000; unfold pos; omega
omit [FloatOps F] in
theorem out_inb (L : grid5.Coords) (n : ℕ) : ∀ a, (![pos L n] : Fin 1 → ℕ) a + S3200.size a ≤ S1600000.size a := by
  intro a; fin_cases a
  show pos L n + 3200 ≤ 1600000; unfold pos; omega

/-- Piece `n` of row 5 of the transposed argument, and piece `n` of the flat result, as memrefs of the tile. -/
abbrev inM (L : grid5.Coords) (n : ℕ) : Memref sig .scVector .hbm S1x3200 .f32 :=
  (xtW).slice (Rect.unit (s := S22x1600000) ![5, pos L n] S1x3200.size (in_inb L n)) (fun _ => rfl)
abbrev outM (L : grid5.Coords) (n : ℕ) : Memref sig .scVector .hbm S3200 .f32 :=
  (oW).slice (Rect.unit (s := S1600000) ![pos L n] S3200.size (out_inb L n)) (fun _ => rfl)

/-! The program's own slices are these pieces: by the closed forms of its offset functions. -/

omit [FloatOps F] in
theorem off2 {a b : ℕ} (h : a = b) : (![5, a] : Fin 2 → ℕ) = ![5, b] := by rw [h]
omit [FloatOps F] in
theorem off1' {a b : ℕ} (h : a = b) : (![a] : Fin 1 → ℕ) = ![b] := by rw [h]

omit [FloatOps F] in
theorem off_in0 (L : grid5.Coords) (h : valid L 0) : k5_off1 L 0#32 = ![5, pos L 0] :=
  (k5_off1_eq L 0).trans (off2 (by rw [pos_valid h]; simp))
omit [FloatOps F] in
theorem off_in1 (L : grid5.Coords) (h : valid L 1) : k5_off1 L 32#32 = ![5, pos L 1] :=
  (k5_off1_eq L 1).trans (off2 (by rw [pos_valid h]; simp))
omit [FloatOps F] in
theorem off_6 (L : grid5.Coords) (t : Fin k5_t1_loop.trips) (h : valid L (2 * t.val + 2)) : k5_off6 L t = ![5, pos L (2 * t.val + 2)] :=
  (k5_off6_eq L t).trans (off2 (by rw [pos_valid h]; omega))
omit [FloatOps F] in
theorem off_11 (L : grid5.Coords) (t : Fin k5_t1_loop.trips) (h : valid L (2 * t.val + 3)) : k5_off11 L t = ![5, pos L (2 * t.val + 3)] :=
  (k5_off11_eq L t).trans (off2 (by rw [pos_valid h]; omega))
omit [FloatOps F] in
theorem off_5 (L : grid5.Coords) (t : Fin k5_t1_loop.trips) (h : valid L (2 * t.val)) : k5_off5 L t = ![pos L (2 * t.val)] :=
  (k5_off5_eq L t).trans (off1' (by rw [pos_valid h]; omega))
omit [FloatOps F] in
theorem off_10 (L : grid5.Coords) (t : Fin k5_t1_loop.trips) (h : valid L (2 * t.val + 1)) : k5_off10 L t = ![pos L (2 * t.val + 1)] :=
  (k5_off10_eq L t).trans (off1' (by rw [pos_valid h]; omega))

/-- Holding a 1 × 3200 window of the transposed argument, or a 3200 window of the result, by exactly its elements
    says the same whichever way the window's offsets are spelt. -/
theorem in_congr {off off' : Fin 2 → ℕ} (h : off = off') (p : ∀ a, off a + S1x3200.size a ≤ S22x1600000.size a)
    (p' : ∀ a, off' a + S1x3200.size a ≤ S22x1600000.size a) (f : Buf (Elt F) ((xtW).view.loc (thr d L))) :
    (((xtW).slice (Rect.unit (s := S22x1600000) off S1x3200.size p) (fun _ => rfl)).view.loc (thr d L)
        ↦[((xtW).slice (Rect.unit (s := S22x1600000) off S1x3200.size p) (fun _ => rfl)).view.set]{fullShare} f : sProp 𝕄)
      = (((xtW).slice (Rect.unit (s := S22x1600000) off' S1x3200.size p') (fun _ => rfl)).view.loc (thr d L)
        ↦[((xtW).slice (Rect.unit (s := S22x1600000) off' S1x3200.size p') (fun _ => rfl)).view.set]{fullShare} f) := by
  subst h; rfl
theorem out_congr {off off' : Fin 1 → ℕ} (h : off = off') (p : ∀ a, off a + S3200.size a ≤ S1600000.size a)
    (p' : ∀ a, off' a + S3200.size a ≤ S1600000.size a) (f : Buf (Elt F) ((oW).view.loc (thr d L))) :
    (((oW).slice (Rect.unit (s := S1600000) off S3200.size p) (fun _ => rfl)).view.loc (thr d L)
        ↦[((oW).slice (Rect.unit (s := S1600000) off S3200.size p) (fun _ => rfl)).view.set]{fullShare} f : sProp 𝕄)
      = (((oW).slice (Rect.unit (s := S1600000) off' S3200.size p') (fun _ => rfl)).view.loc (thr d L)
        ↦[((oW).slice (Rect.unit (s := S1600000) off' S3200.size p') (fun _ => rfl)).view.set]{fullShare} f) := by
  subst h; rfl

/-! The printed conditions, as facts about the trip and the tile. -/

omit [FloatOps F] in
theorem trips1 : k5_t1_loop.trips = 8 := by decide
omit [FloatOps F] in
theorem cond1_iff : ∀ (t : Fin k5_t1_loop.trips), k5_cond1 t = 1#1 ↔ 1 ≤ t.val := by decide +kernel
omit [FloatOps F] in
theorem cond2_iff : ∀ (L : grid5.Coords) (t : Fin k5_t1_loop.trips), k5_cond2 L t = 1#1 := by decide +kernel
omit [FloatOps F] in
theorem cond3_iff : ∀ (L : grid5.Coords) (t : Fin k5_t1_loop.trips), k5_cond3 L t = 1#1 ↔ t.val ≤ 6 := by decide +kernel
omit [FloatOps F] in
theorem cond4_iff : ∀ (t : Fin k5_t1_loop.trips), k5_cond4 t = 1#1 ↔ 1 ≤ t.val := by decide +kernel
omit [FloatOps F] in
theorem cond5_iff : ∀ (L : grid5.Coords) (t : Fin k5_t1_loop.trips), k5_cond5 L t = 1#1 ↔ (t.val ≤ 6 ∨ big L) := by decide +kernel
omit [FloatOps F] in
theorem cond6_iff : ∀ (L : grid5.Coords) (t : Fin k5_t1_loop.trips), k5_cond6 L t = 1#1 ↔ (t.val ≤ 5 ∨ (t.val = 6 ∧ big L)) := by decide +kernel
omit [FloatOps F] in
theorem cond7_iff : ∀ (L : grid5.Coords), k5_cond7 L = 1#1 := by decide +kernel
omit [FloatOps F] in
theorem cond8_iff : ∀ (L : grid5.Coords), k5_cond8 L = 1#1 ↔ big L := by decide +kernel

variable (O : CellTallies nD τ sig (HIx 22)) (W : Waits sig (HIx 22))
variable (fx : Buf (Elt F) ((xtW).view.loc (thr d L)))

abbrev NN : ℕ := 102400

/-- The 3200-element window of a flat staging buffer that a piece is written out from. -/
abbrev stg (a : Memref sig .scVector .vmem S25600 .f32) : Memref sig .scVector .vmem S3200 .f32 :=
  a.slice (Rect.unit (s := S25600) ![0] S3200.size inb_S25600_S3200_0) (fun _ => rfl)

/-- Piece `n` of the argument row held by exactly its elements, at the argument's contents; piece `n` of the result
    held by exactly its elements, at some contents. -/
abbrev xtPiece (n : ℕ) : sProp 𝕄 := (inM L n).view.loc (thr d L) ↦[(inM L n).view.set]{fullShare} fx
abbrev oPiece (n : ℕ) : sProp 𝕄 := iprop(∃ f, (outM L n).view.loc (thr d L) ↦[(outM L n).view.set]{fullShare} f)

/-- The lane-copy loop of a slot: the staging row keeps its contents, the flat staging buffer holds some contents. -/
def laneInv0 (g4 : Buf (Elt F) ((a4).view.loc (thr d L))) (_ : ℕ) (_ : PUnit) : sProp 𝕄 :=
  iprop(((a4).view.loc (thr d L) ↦{fullShare} g4) ∗ (∃ g, (a6).view.loc (thr d L) ↦{fullShare} g))
def laneInv1 (g5 : Buf (Elt F) ((a5).view.loc (thr d L))) (_ : ℕ) (_ : PUnit) : sProp 𝕄 :=
  iprop(((a5).view.loc (thr d L) ↦{fullShare} g5) ∗ (∃ g, (a7).view.loc (thr d L) ↦{fullShare} g))

/-- A fetch slot before trip work on piece `n`: the piece's fetch in flight (it will hand back the staging row at some
    contents, and the piece), or, when there is no such piece, the slot idle. -/
def inSlot (a : Memref sig .scVector .vmem S8x3200 .f32) (sm : DmaSem sig) (n : ℕ) : sProp 𝕄 :=
  if valid L n then
    iprop(∃ g, Transfers.Flight countersEmb (thr d L) (SemLoc.dma sm) (default : HIx 22) NN
      iprop((a.view.loc (thr d L) ↦{fullShare} g) ∗ xtPiece d L fx n))
  else iprop((∃ g, a.view.loc (thr d L) ↦{fullShare} g) ∗ semVal (thr d L, SemLoc.dma sm) 0)

/-- A write-out slot before trip work on piece `m`: piece `m - 2`'s write-out in flight (it will hand back that piece
    of the result at some contents, and the staging window), the rest of the staging buffer beside it; or idle. -/
def outSlot (a : Memref sig .scVector .vmem S25600 .f32) (sm : DmaSem sig) (m : ℕ) : sProp 𝕄 :=
  if 2 ≤ m ∧ valid L (m - 2) then
    iprop(∃ g, Transfers.Flight countersEmb (thr d L) (SemLoc.dma sm) (default : HIx 22) NN
        iprop(oPiece d L (m - 2) ∗ ((stg a).view.loc (thr d L) ↦[(stg a).view.set]{fullShare} g))
      ∗ (a.view.loc (thr d L) ↦[Finset.univ \ (stg a).view.set]{fullShare} g))
  else iprop((∃ g, a.view.loc (thr d L) ↦{fullShare} g) ∗ semVal (thr d L, SemLoc.dma sm) 0)

/-- Piece `n` when it exists, nothing otherwise. -/
def xP (n : ℕ) : sProp 𝕄 := if valid L n then xtPiece d L fx n else iprop(emp)
def oP (n : ℕ) : sProp 𝕄 := if valid L n then oPiece d L n else iprop(emp)

/-- What the tile holds outside the slots before trip `t`: every piece of the argument row but those being fetched
    (`2t`, `2t + 1`), every piece of the result but those being written out (`2t - 2`, `2t - 1`). -/
def xSet (t : ℕ) : Finset ℕ := (Finset.range 18).filter fun n => n ≠ 2 * t ∧ n ≠ 2 * t + 1
def oSet (t : ℕ) : Finset ℕ := (Finset.range 18).filter fun n => n + 2 ≠ 2 * t ∧ n + 2 ≠ 2 * t + 1

def inv (t : ℕ) (_ : PUnit) : sProp 𝕄 :=
  iprop(Transfers.MayWaits (thr d L) (none : HIx 22) O
    ∗ (∃ W', ⌜∀ p ∈ W', p ∈ W ∨ p.2 = none⌝ ∗ owes (thr d L) O W')
    ∗ bigSep (xSet t) (xP d L fx) ∗ bigSep (oSet t) (oP d L)
    ∗ inSlot d L fx a4 cc5_scratch4.sem (2 * t) ∗ outSlot d L a6 cc5_scratch6.sem (2 * t)
    ∗ inSlot d L fx a5 cc5_scratch5.sem (2 * t + 1) ∗ outSlot d L a7 cc5_scratch7.sem (2 * t + 1))

omit [FloatOps F] in
theorem two_out {Φ : ℕ → sProp 𝕄} {s : Finset ℕ} {a b : ℕ} (ha : a ∈ s) (hb : b ∈ s) (hab : a ≠ b) :
    bigSep s Φ = iprop(Φ a ∗ Φ b ∗ bigSep ((s.erase a).erase b) Φ) := by
  rw [SparseCore.bigSep_erase' ha, SparseCore.bigSep_erase' (Finset.mem_erase.mpr ⟨fun e => hab e.symm, hb⟩)]

omit [FloatOps F] in
theorem range18_split : (Finset.range 18) = insert 0 (insert 1 (xSet 0)) := by decide

theorem xRange_split (v0 : valid L 0) (v1 : valid L 1) :
    bigSep (Finset.range 18) (xP d L fx) = iprop(xtPiece d L fx 0 ∗ xtPiece d L fx 1 ∗ bigSep (xSet 0) (xP d L fx)) := by
  rw [range18_split, SparseCore.bigSep_insert' (by decide), SparseCore.bigSep_insert' (by decide)]
  unfold xP; rw [if_pos v0, if_pos v1]
omit [FloatOps F] in
theorem oSet_zero : oSet 0 = Finset.range 18 := by decide

theorem inSlot_pos {a : Memref sig .scVector .vmem S8x3200 .f32} {sm : DmaSem sig} {n : ℕ} (v : valid L n) :
    inSlot d L fx a sm n = iprop(∃ g, Transfers.Flight countersEmb (thr d L) (SemLoc.dma sm) (default : HIx 22) NN
      iprop((a.view.loc (thr d L) ↦{fullShare} g) ∗ xtPiece d L fx n)) := by unfold inSlot; rw [if_pos v]
theorem inSlot_neg {a : Memref sig .scVector .vmem S8x3200 .f32} {sm : DmaSem sig} {n : ℕ} (v : ¬ valid L n) :
    inSlot d L fx a sm n = iprop((∃ g, a.view.loc (thr d L) ↦{fullShare} g) ∗ semVal (thr d L, SemLoc.dma sm) 0) := by
  unfold inSlot; rw [if_neg v]
theorem outSlot_pos {a : Memref sig .scVector .vmem S25600 .f32} {sm : DmaSem sig} {m : ℕ} (h : 2 ≤ m ∧ valid L (m - 2)) :
    outSlot (F := F) d L a sm m = iprop(∃ g, Transfers.Flight countersEmb (thr d L) (SemLoc.dma sm) (default : HIx 22) NN
        iprop(oPiece (F := F) d L (m - 2) ∗ ((stg a).view.loc (thr d L) ↦[(stg a).view.set]{fullShare} g))
      ∗ (a.view.loc (thr d L) ↦[Finset.univ \ (stg a).view.set]{fullShare} g)) := by unfold outSlot; rw [if_pos h]
theorem outSlot_neg {a : Memref sig .scVector .vmem S25600 .f32} {sm : DmaSem sig} {m : ℕ} (h : ¬ (2 ≤ m ∧ valid L (m - 2))) :
    outSlot (F := F) d L a sm m = iprop((∃ g, a.view.loc (thr d L) ↦{fullShare} g) ∗ semVal (thr d L, SemLoc.dma sm) 0) := by
  unfold outSlot; rw [if_neg h]

/-- A fetch in flight, its source window spelt by any offsets equal to piece `n`'s, fills the fetch slot for `n`. -/
theorem fl_in {off : Fin 2 → ℕ} {n : ℕ} (h : off = ![5, pos L n]) (p : ∀ a, off a + S1x3200.size a ≤ S22x1600000.size a) (v : valid L n)
    (a : Memref sig .scVector .vmem S8x3200 .f32) (sm : DmaSem sig) :
    (iprop(∃ g, Transfers.Flight countersEmb (thr d L) (SemLoc.dma sm) (default : HIx 22) NN
        iprop((a.view.loc (thr d L) ↦{fullShare} g)
          ∗ (((xtW).slice (Rect.unit (s := S22x1600000) off S1x3200.size p) (fun _ => rfl)).view.loc (thr d L)
              ↦[((xtW).slice (Rect.unit (s := S22x1600000) off S1x3200.size p) (fun _ => rfl)).view.set]{fullShare} fx))) : sProp 𝕄)
      ⊢ inSlot d L fx a sm n := by
  rw [inSlot_pos d L fx v]
  iintro ⟨%g, H⟩
  have hD : (iprop((a.view.loc (thr d L) ↦{fullShare} g)
          ∗ (((xtW).slice (Rect.unit (s := S22x1600000) off S1x3200.size p) (fun _ => rfl)).view.loc (thr d L)
              ↦[((xtW).slice (Rect.unit (s := S22x1600000) off S1x3200.size p) (fun _ => rfl)).view.set]{fullShare} fx)) : sProp 𝕄)
      ⊢ iprop((a.view.loc (thr d L) ↦{fullShare} g) ∗ xtPiece d L fx n) := by
    iintro ⟨H1, H2⟩
    isplitl [H1]; · iexact H1
    iapply (Entails.of_eq (in_congr d L h p (in_inb L n) fx)); iexact H2
  iexists g
  iapply (Transfers.Flight_mono countersEmb (thr d L) hD); iexact H

/-- A write-out in flight, its destination window spelt by any offsets equal to piece `n`'s, with the rest of the
    staging buffer, fills the write-out slot for `n + 2`. -/
theorem fl_out {off : Fin 1 → ℕ} {n : ℕ} (h : off = ![pos L n]) (p : ∀ a, off a + S3200.size a ≤ S1600000.size a) (v : valid L n)
    (a : Memref sig .scVector .vmem S25600 .f32) (sm : DmaSem sig) :
    (iprop(∃ (f : Buf (Elt F) ((oW).view.loc (thr d L))) (g : Buf (Elt F) (a.view.loc (thr d L))), Transfers.Flight countersEmb (thr d L) (SemLoc.dma sm) (default : HIx 22) NN
        iprop((((oW).slice (Rect.unit (s := S1600000) off S3200.size p) (fun _ => rfl)).view.loc (thr d L)
              ↦[((oW).slice (Rect.unit (s := S1600000) off S3200.size p) (fun _ => rfl)).view.set]{fullShare} f)
          ∗ ((stg a).view.loc (thr d L) ↦[(stg a).view.set]{fullShare} g))
        ∗ (a.view.loc (thr d L) ↦[Finset.univ \ (stg a).view.set]{fullShare} g)) : sProp 𝕄)
      ⊢ outSlot (F := F) d L a sm (n + 2) := by
  rw [outSlot_pos (F := F) d L (m := n + 2) ⟨by omega, by simpa using v⟩]
  iintro ⟨%f, %g, H, R⟩
  have hD : (iprop((((oW).slice (Rect.unit (s := S1600000) off S3200.size p) (fun _ => rfl)).view.loc (thr d L)
              ↦[((oW).slice (Rect.unit (s := S1600000) off S3200.size p) (fun _ => rfl)).view.set]{fullShare} f)
          ∗ ((stg a).view.loc (thr d L) ↦[(stg a).view.set]{fullShare} g)) : sProp 𝕄)
      ⊢ iprop(oPiece (F := F) d L (n + 2 - 2) ∗ ((stg a).view.loc (thr d L) ↦[(stg a).view.set]{fullShare} g)) := by
    rw [Nat.add_sub_cancel]
    iintro ⟨H1, H2⟩
    isplitl [H1]
    · iexists f; iapply (Entails.of_eq (out_congr d L h p (out_inb L n) f)); iexact H1
    · iexact H2
  iexists g
  isplitl [H]
  · iapply (Transfers.Flight_mono countersEmb (thr d L) hD); iexact H
  · iexact R

/-! The pieces outside the slots, from one trip to the next. -/
def xCore (k : ℕ) : Finset ℕ := (Finset.range 18).filter fun n => n ≠ 2 * k ∧ n ≠ 2 * k + 1 ∧ n ≠ 2 * k + 2 ∧ n ≠ 2 * k + 3
def oCore (k : ℕ) : Finset ℕ := (Finset.range 18).filter fun n => n + 2 ≠ 2 * k ∧ n + 2 ≠ 2 * k + 1 ∧ n ≠ 2 * k ∧ n ≠ 2 * k + 1

omit [FloatOps F] in
theorem xSet_out (Φ : ℕ → sProp 𝕄) (k : ℕ) (hk : k < 8) : bigSep (xSet k) Φ = iprop(Φ (2 * k + 2) ∗ Φ (2 * k + 3) ∗ bigSep (xCore k) Φ) := by
  have e : ((xSet k).erase (2 * k + 2)).erase (2 * k + 3) = xCore k := by
    ext n; simp only [xSet, xCore, Finset.mem_erase, Finset.mem_filter, Finset.mem_range]; omega
  rw [← e]; exact two_out (by simp only [xSet, Finset.mem_filter, Finset.mem_range]; omega) (by simp only [xSet, Finset.mem_filter, Finset.mem_range]; omega) (by omega)
omit [FloatOps F] in
theorem xSet_in (Φ : ℕ → sProp 𝕄) (k : ℕ) (hk : k < 8) : bigSep (xSet (k + 1)) Φ = iprop(Φ (2 * k) ∗ Φ (2 * k + 1) ∗ bigSep (xCore k) Φ) := by
  have e : ((xSet (k + 1)).erase (2 * k)).erase (2 * k + 1) = xCore k := by
    ext n; simp only [xSet, xCore, Finset.mem_erase, Finset.mem_filter, Finset.mem_range]; omega
  rw [← e]; exact two_out (by simp only [xSet, Finset.mem_filter, Finset.mem_range]; omega) (by simp only [xSet, Finset.mem_filter, Finset.mem_range]; omega) (by omega)
omit [FloatOps F] in
theorem oSet_out (Φ : ℕ → sProp 𝕄) (k : ℕ) (hk : k < 8) : bigSep (oSet k) Φ = iprop(Φ (2 * k) ∗ Φ (2 * k + 1) ∗ bigSep (oCore k) Φ) := by
  have e : ((oSet k).erase (2 * k)).erase (2 * k + 1) = oCore k := by
    ext n; simp only [oSet, oCore, Finset.mem_erase, Finset.mem_filter, Finset.mem_range]; omega
  rw [← e]; exact two_out (by simp only [oSet, Finset.mem_filter, Finset.mem_range]; omega) (by simp only [oSet, Finset.mem_filter, Finset.mem_range]; omega) (by omega)
omit [FloatOps F] in
theorem oSet_in (Φ : ℕ → sProp 𝕄) (k : ℕ) (hk : k < 8) (hk1 : 1 ≤ k) :
    bigSep (oSet (k + 1)) Φ = iprop(Φ (2 * k - 2) ∗ Φ (2 * k - 1) ∗ bigSep (oCore k) Φ) := by
  have e : ((oSet (k + 1)).erase (2 * k - 2)).erase (2 * k - 1) = oCore k := by
    ext n; simp only [oSet, oCore, Finset.mem_erase, Finset.mem_filter, Finset.mem_range]; omega
  rw [← e]; exact two_out (by simp only [oSet, Finset.mem_filter, Finset.mem_range]; omega) (by simp only [oSet, Finset.mem_filter, Finset.mem_range]; omega) (by omega)

theorem xP_pos {n : ℕ} (v : valid L n) : xP d L fx n = xtPiece d L fx n := if_pos v
theorem oP_pos {n : ℕ} (v : valid L n) : oP (F := F) d L n = oPiece (F := F) d L n := if_pos v
theorem xP_neg {n : ℕ} (v : ¬ valid L n) : xP d L fx n = iprop(emp) := if_neg v
theorem oP_neg {n : ℕ} (v : ¬ valid L n) : oP (F := F) d L n = iprop(emp) := if_neg v

/-- Piece `n` of the result at its final contents: row 5 of the transposed argument. -/
def oQ (n : ℕ) : sProp 𝕄 :=
  if valid L n then (outM L n).view.loc (thr d L) ↦[(outM L n).view.set]{fullShare} (Cert.Spec.row 5 fx) else iprop(emp)

/-- What a tile is handed for the call: its pieces of row 5 of the transposed argument, at the argument's contents, and
    its pieces of the result at some contents. What it hands back: the same pieces of the argument, and its pieces of
    the result holding the row. -/
def goRes : sProp 𝕄 := iprop(bigSep (Finset.range 18) (xP d L fx) ∗ bigSep (Finset.range 18) (oP (F := F) d L))
def tdRes : sProp 𝕄 := iprop(bigSep (Finset.range 18) (xP d L fx) ∗ bigSep (Finset.range 18) (oQ d L fx))

end Tile

end Cert.Proof.TileK5

end
-- ==== Proof.TileK6Defs.lean ====
/-
  One vector subcore's task of copy kernel 6 (counting from 0): definitions. The task moves its pieces of row 6 of the
  transposed argument (pieces of 3200 consecutive elements, piece number 2·s + c + 32·n for the subcore (c, s) and
  n = 0, 1, … while that number is below 500) into the flat result: each piece is fetched into a staging row, copied
  16 lanes at a time into a flat staging buffer, and written out, two pieces in flight at a time. Here: the pieces as
  memrefs, the program's own spellings of them, the printed conditions as facts about the trip, the two slots' states
  between trips, and what the tile holds outside the slots.
-/
import proofs.«206869_g37898791420194_cont_8to1_b_558_20_alg».proof.Defs
import Idealize.ShloMosaic.Lib.SparseCore.Launch
import Idealize.ShloMosaic.Lib.StableHlo.Run
import Idealize.ShloMosaic.Lib.Pipeline.Kit
import Idealize.ShloMosaic.Lib.Tactic
import proofs.«206869_g37898791420194_cont_8to1_b_558_20_alg».proof.Proof.Gen.KernelIdeal
import proofs.«206869_g37898791420194_cont_8to1_b_558_20_alg».proof.Proof.Gen.KernelIdeal.Skeleton
import proofs.«206869_g37898791420194_cont_8to1_b_558_20_alg».proof.Proof.Spec

noncomputable section

namespace Cert.Proof.TileK6

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

abbrev ΛP : Labels := Pipeline.Sig Λ₀ (Fin 0) fun p => (pcfgs (F := F) p).Adm
abbrev K : SparseCore.Cfg τ sig (ΛP (F := F)) 22 := sc (F := F)
abbrev 𝒱₀ : Variants := Variants.none

abbrev UH : Type := URounds (GSem nD τ sig) ℕ
abbrev UU : Type := UH × Counters

local notation "𝕄" => MT nD τ sig (HIx 22) (Elt F) ℕ UU ℕ

local notation "xtW" => (Memref.whole Cert.KernelIdeal.main_v0_scv : Memref Cert.KernelIdeal.sig Kind.scVector Space.hbm Cert.KernelIdeal.S22x1600000 EltTy.f32)
local notation "oW" => (Memref.whole Cert.KernelIdeal.main_v7_scv : Memref Cert.KernelIdeal.sig Kind.scVector Space.hbm Cert.KernelIdeal.S1600000 EltTy.f32)
local notation "a4" => (Memref.whole Cert.KernelIdeal.cc6_scratch0 : Memref Cert.KernelIdeal.sig Kind.scVector Space.vmem Cert.KernelIdeal.S8x3200 EltTy.f32)
local notation "a5" => (Memref.whole Cert.KernelIdeal.cc6_scratch1 : Memref Cert.KernelIdeal.sig Kind.scVector Space.vmem Cert.KernelIdeal.S8x3200 EltTy.f32)
local notation "a6" => (Memref.whole Cert.KernelIdeal.cc6_scratch2 : Memref Cert.KernelIdeal.sig Kind.scVector Space.vmem Cert.KernelIdeal.S25600 EltTy.f32)
local notation "a7" => (Memref.whole Cert.KernelIdeal.cc6_scratch3 : Memref Cert.KernelIdeal.sig Kind.scVector Space.vmem Cert.KernelIdeal.S25600 EltTy.f32)

variable [FloatOps F]

section Tile

variable (d : Dev nD) (L : grid6.Coords)

abbrev cV (L : grid6.Coords) : Fin τ.nSC := (L 0).castLE hcore6
abbrev jV (L : grid6.Coords) : Fin τ.nSub := (L 1).castLE hsub6
abbrev thr (d : Dev nD) (L : grid6.Coords) : Thread nD τ := V d (cV L) (jV L)

/-- The tile's number 2·s + c, and whether it has sixteen pieces (numbers below 20) or fifteen. -/
abbrev wid (L : grid6.Coords) : ℕ := 2 * (L 1).val + (L 0).val
abbrev big (L : grid6.Coords) : Prop := wid L < 20

omit [FloatOps F] in
theorem wid_lt (L : grid6.Coords) : wid L < 32 := by
  have h0 : (L 0).val < 2 := (L 0).isLt
  have h1 : (L 1).val < 16 := (L 1).isLt
  unfold wid; omega

/-- Piece `n` of the tile exists: `n < 15`, or `n = 15` on a tile with sixteen pieces. It is the piece number
    `wid + 32·n < 500` of the row. -/
def valid (L : grid6.Coords) (n : ℕ) : Prop := n < 15 ∨ (n = 15 ∧ big L)
instance (L : grid6.Coords) (n : ℕ) : Decidable (valid L n) := by unfold valid big; infer_instance

omit [FloatOps F] in
theorem valid_iff (L : grid6.Coords) (n : ℕ) : valid L n ↔ wid L + 32 * n < 500 := by
  have := wid_lt L; unfold valid big; omega

/-- Where piece `n` starts in the row (clamped to the last piece of the row, so that the rectangle is in bounds for
    every `n`; for a valid piece the clamp is idle). -/
abbrev pos (L : grid6.Coords) (n : ℕ) : ℕ := 3200 * min (wid L + 32 * n) 499

omit [FloatOps F] in
theorem pos_valid {L : grid6.Coords} {n : ℕ} (h : valid L n) : pos L n = 6400 * (L 1).val + 3200 * (L 0).val + 102400 * n := by
  have := (valid_iff L n).mp h; unfold pos wid at *; omega

omit [FloatOps F] in
theorem in_inb (L : grid6.Coords) (n : ℕ) : ∀ a, (![6, pos L n] : Fin 2 → ℕ) a + S1x3200.size a ≤ S22x1600000.size a := by
  intro a; fin_cases a
  · show 6 + 1 ≤ 22; omega
  · show pos L n + 3200 ≤ 1600000; unfold pos; omega
omit [FloatOps F] in
theorem out_inb (L : grid6.Coords) (n : ℕ) : ∀ a, (![pos L n] : Fin 1 → ℕ) a + S3200.size a ≤ S1600000.size a := by
  intro a; fin_cases a
  show pos L n + 3200 ≤ 1600000; unfold pos; omega

/-- Piece `n` of row 6 of the transposed argument, and piece `n` of the flat result, as memrefs of the tile. -/
abbrev inM (L : grid6.Coords) (n : ℕ) : Memref sig .scVector .hbm S1x3200 .f32 :=
  (xtW).slice (Rect.unit (s := S22x1600000) ![6, pos L n] S1x3200.size (in_inb L n)) (fun _ => rfl)
abbrev outM (L : grid6.Coords) (n : ℕ) : Memref sig .scVector .hbm S3200 .f32 :=
  (oW).slice (Rect.unit (s := S1600000) ![pos L n] S3200.size (out_inb L n)) (fun _ => rfl)

/-! The program's own slices are these pieces: by the closed forms of its offset functions. -/

omit [FloatOps F] in
theorem off2 {a b : ℕ} (h : a = b) : (![6, a] : Fin 2 → ℕ) = ![6, b] := by rw [h]
omit [FloatOps F] in
theorem off1' {a b : ℕ} (h : a = b) : (![a] : Fin 1 → ℕ) = ![b] := by rw [h]

omit [FloatOps F] in
theorem off_in0 (L : grid6.Coords) (h : valid L 0) : k6_off1 L 0#32 = ![6, pos L 0] :=
  (k6_off1_eq L 0).trans (off2 (by rw [pos_valid h]; simp))
omit [FloatOps F] in
theorem off_in1 (L : grid6.Coords) (h : valid L 1) : k6_off1 L 32#32 = ![6, pos L 1] :=
  (k6_off1_eq L 1).trans (off2 (by rw [pos_valid h]; simp))
omit [FloatOps F] in
theorem off_6 (L : grid6.Coords) (t : Fin k6_t1_loop.trips) (h : valid L (2 * t.val + 2)) : k6_off6 L t = ![6, pos L (2 * t.val + 2)] :=
  (k6_off6_eq L t).trans (off2 (by rw [pos_valid h]; omega))
omit [FloatOps F] in
theorem off_11 (L : grid6.Coords) (t : Fin k6_t1_loop.trips) (h : valid L (2 * t.val + 3)) : k6_off11 L t = ![6, pos L (2 * t.val + 3)] :=
  (k6_off11_eq L t).trans (off2 (by rw [pos_valid h]; omega))
omit [FloatOps F] in
theorem off_5 (L : grid6.Coords) (t : Fin k6_t1_loop.trips) (h : valid L (2 * t.val)) : k6_off5 L t = ![pos L (2 * t.val)] :=
  (k6_off5_eq L t).trans (off1' (by rw [pos_valid h]; omega))
omit [FloatOps F] in
theorem off_10 (L : grid6.Coords) (t : Fin k6_t1_loop.trips) (h : valid L (2 * t.val + 1)) : k6_off10 L t = ![pos L (2 * t.val + 1)] :=
  (k6_off10_eq L t).trans (off1' (by rw [pos_valid h]; omega))

/-- Holding a 1 × 3200 window of the transposed argument, or a 3200 window of the result, by exactly its elements
    says the same whichever way the window's offsets are spelt. -/
theorem in_congr {off off' : Fin 2 → ℕ} (h : off = off') (p : ∀ a, off a + S1x3200.size a ≤ S22x1600000.size a)
    (p' : ∀ a, off' a + S1x3200.size a ≤ S22x1600000.size a) (f : Buf (Elt F) ((xtW).view.loc (thr d L))) :
    (((xtW).slice (Rect.unit (s := S22x1600000) off S1x3200.size p) (fun _ => rfl)).view.loc (thr d L)
        ↦[((xtW).slice (Rect.unit (s := S22x1600000) off S1x3200.size p) (fun _ => rfl)).view.set]{fullShare} f : sProp 𝕄)
      = (((xtW).slice (Rect.unit (s := S22x1600000) off' S1x3200.size p') (fun _ => rfl)).view.loc (thr d L)
        ↦[((xtW).slice (Rect.unit (s := S22x1600000) off' S1x3200.size p') (fun _ => rfl)).view.set]{fullShare} f) := by
  subst h; rfl
theorem out_congr {off off' : Fin 1 → ℕ} (h : off = off') (p : ∀ a, off a + S3200.size a ≤ S1600000.size a)
    (p' : ∀ a, off' a + S3200.size a ≤ S1600000.size a) (f : Buf (Elt F) ((oW).view.loc (thr d L))) :
    (((oW).slice (Rect.unit (s := S1600000) off S3200.size p) (fun _ => rfl)).view.loc (thr d L)
        ↦[((oW).slice (Rect.unit (s := S1600000) off S3200.size p) (fun _ => rfl)).view.set]{fullShare} f : sProp 𝕄)
      = (((oW).slice (Rect.unit (s := S1600000) off' S3200.size p') (fun _ => rfl)).view.loc (thr d L)
        ↦[((oW).slice (Rect.unit (s := S1600000) off' S3200.size p') (fun _ => rfl)).view.set]{fullShare} f) := by
  subst h; rfl

/-! The printed conditions, as facts about the trip and the tile. -/

omit [FloatOps F] in
theorem trips1 : k6_t1_loop.trips = 8 := by decide
omit [FloatOps F] in
theorem cond1_iff : ∀ (t : Fin k6_t1_loop.trips), k6_cond1 t = 1#1 ↔ 1 ≤ t.val := by decide +kernel
omit [FloatOps F] in
theorem cond2_iff : ∀ (L : grid6.Coords) (t : Fin k6_t1_loop.trips), k6_cond2 L t = 1#1 := by decide +kernel
omit [FloatOps F] in
theorem cond3_iff : ∀ (L : grid6.Coords) (t : Fin k6_t1_loop.trips), k6_cond3 L t = 1#1 ↔ t.val ≤ 6 := by decide +kernel
omit [FloatOps F] in
theorem cond4_iff : ∀ (t : Fin k6_t1_loop.trips), k6_cond4 t = 1#1 ↔ 1 ≤ t.val := by decide +kernel
omit [FloatOps F] in
theorem cond5_iff : ∀ (L : grid6.Coords) (t : Fin k6_t1_loop.trips), k6_cond5 L t = 1#1 ↔ (t.val ≤ 6 ∨ big L) := by decide +kernel
omit [FloatOps F] in
theorem cond6_iff : ∀ (L : grid6.Coords) (t : Fin k6_t1_loop.trips), k6_cond6 L t = 1#1 ↔ (t.val ≤ 5 ∨ (t.val = 6 ∧ big L)) := by decide +kernel
omit [FloatOps F] in
theorem cond7_iff : ∀ (L : grid6.Coords), k6_cond7 L = 1#1 := by decide +kernel
omit [FloatOps F] in
theorem cond8_iff : ∀ (L : grid6.Coords), k6_cond8 L = 1#1 ↔ big L := by decide +kernel

variable (O : CellTallies nD τ sig (HIx 22)) (W : Waits sig (HIx 22))
variable (fx : Buf (Elt F) ((xtW).view.loc (thr d L)))

abbrev NN : ℕ := 102400

/-- The 3200-element window of a flat staging buffer that a piece is written out from. -/
abbrev stg (a : Memref sig .scVector .vmem S25600 .f32) : Memref sig .scVector .vmem S3200 .f32 :=
  a.slice (Rect.unit (s := S25600) ![0] S3200.size inb_S25600_S3200_0) (fun _ => rfl)

/-- Piece `n` of the argument row held by exactly its elements, at the argument's contents; piece `n` of the result
    held by exactly its elements, at some contents. -/
abbrev xtPiece (n : ℕ) : sProp 𝕄 := (inM L n).view.loc (thr d L) ↦[(inM L n).view.set]{fullShare} fx
abbrev oPiece (n : ℕ) : sProp 𝕄 := iprop(∃ f, (outM L n).view.loc (thr d L) ↦[(outM L n).view.set]{fullShare} f)

/-- The lane-copy loop of a slot: the staging row keeps its contents, the flat staging buffer holds some contents. -/
def laneInv0 (g4 : Buf (Elt F) ((a4).view.loc (thr d L))) (_ : ℕ) (_ : PUnit) : sProp 𝕄 :=
  iprop(((a4).view.loc (thr d L) ↦{fullShare} g4) ∗ (∃ g, (a6).view.loc (thr d L) ↦{fullShare} g))
def laneInv1 (g5 : Buf (Elt F) ((a5).view.loc (thr d L))) (_ : ℕ) (_ : PUnit) : sProp 𝕄 :=
  iprop(((a5).view.loc (thr d L) ↦{fullShare} g5) ∗ (∃ g, (a7).view.loc (thr d L) ↦{fullShare} g))

/-- A fetch slot before trip work on piece `n`: the piece's fetch in flight (it will hand back the staging row at some
    contents, and the piece), or, when there is no such piece, the slot idle. -/
def inSlot (a : Memref sig .scVector .vmem S8x3200 .f32) (sm : DmaSem sig) (n : ℕ) : sProp 𝕄 :=
  if valid L n then
    iprop(∃ g, Transfers.Flight countersEmb (thr d L) (SemLoc.dma sm) (default : HIx 22) NN
      iprop((a.view.loc (thr d L) ↦{fullShare} g) ∗ xtPiece d L fx n))
  else iprop((∃ g, a.view.loc (thr d L) ↦{fullShare} g) ∗ semVal (thr d L, SemLoc.dma sm) 0)

/-- A write-out slot before trip work on piece `m`: piece `m - 2`'s write-out in flight (it will hand back that piece
    of the result at some contents, and the staging window), the rest of the staging buffer beside it; or idle. -/
def outSlot (a : Memref sig .scVector .vmem S25600 .f32) (sm : DmaSem sig) (m : ℕ) : sProp 𝕄 :=
  if 2 ≤ m ∧ valid L (m - 2) then
    iprop(∃ g, Transfers.Flight countersEmb (thr d L) (SemLoc.dma sm) (default : HIx 22) NN
        iprop(oPiece d L (m - 2) ∗ ((stg a).view.loc (thr d L) ↦[(stg a).view.set]{fullShare} g))
      ∗ (a.view.loc (thr d L) ↦[Finset.univ \ (stg a).view.set]{fullShare} g))
  else iprop((∃ g, a.view.loc (thr d L) ↦{fullShare} g) ∗ semVal (thr d L, SemLoc.dma sm) 0)

/-- Piece `n` when it exists, nothing otherwise. -/
def xP (n : ℕ) : sProp 𝕄 := if valid L n then xtPiece d L fx n else iprop(emp)
def oP (n : ℕ) : sProp 𝕄 := if valid L n then oPiece d L n else iprop(emp)

/-- What the tile holds outside the slots before trip `t`: every piece of the argument row but those being fetched
    (`2t`, `2t + 1`), every piece of the result but those being written out (`2t - 2`, `2t - 1`). -/
def xSet (t : ℕ) : Finset ℕ := (Finset.range 18).filter fun n => n ≠ 2 * t ∧ n ≠ 2 * t + 1
def oSet (t : ℕ) : Finset ℕ := (Finset.range 18).filter fun n => n + 2 ≠ 2 * t ∧ n + 2 ≠ 2 * t + 1

def inv (t : ℕ) (_ : PUnit) : sProp 𝕄 :=
  iprop(Transfers.MayWaits (thr d L) (none : HIx 22) O
    ∗ (∃ W', ⌜∀ p ∈ W', p ∈ W ∨ p.2 = none⌝ ∗ owes (thr d L) O W')
    ∗ bigSep (xSet t) (xP d L fx) ∗ bigSep (oSet t) (oP d L)
    ∗ inSlot d L fx a4 cc6_scratch4.sem (2 * t) ∗ outSlot d L a6 cc6_scratch6.sem (2 * t)
    ∗ inSlot d L fx a5 cc6_scratch5.sem (2 * t + 1) ∗ outSlot d L a7 cc6_scratch7.sem (2 * t + 1))

omit [FloatOps F] in
theorem two_out {Φ : ℕ → sProp 𝕄} {s : Finset ℕ} {a b : ℕ} (ha : a ∈ s) (hb : b ∈ s) (hab : a ≠ b) :
    bigSep s Φ = iprop(Φ a ∗ Φ b ∗ bigSep ((s.erase a).erase b) Φ) := by
  rw [SparseCore.bigSep_erase' ha, SparseCore.bigSep_erase' (Finset.mem_erase.mpr ⟨fun e => hab e.symm, hb⟩)]

omit [FloatOps F] in
theorem range18_split : (Finset.range 18) = insert 0 (insert 1 (xSet 0)) := by decide

theorem xRange_split (v0 : valid L 0) (v1 : valid L 1) :
    bigSep (Finset.range 18) (xP d L fx) = iprop(xtPiece d L fx 0 ∗ xtPiece d L fx 1 ∗ bigSep (xSet 0) (xP d L fx)) := by
  rw [range18_split, SparseCore.bigSep_insert' (by decide), SparseCore.bigSep_insert' (by decide)]
  unfold xP; rw [if_pos v0, if_pos v1]
omit [FloatOps F] in
theorem oSet_zero : oSet 0 = Finset.range 18 := by decide

theorem inSlot_pos {a : Memref sig .scVector .vmem S8x3200 .f32} {sm : DmaSem sig} {n : ℕ} (v : valid L n) :
    inSlot d L fx a sm n = iprop(∃ g, Transfers.Flight countersEmb (thr d L) (SemLoc.dma sm) (default : HIx 22) NN
      iprop((a.view.loc (thr d L) ↦{fullShare} g) ∗ xtPiece d L fx n)) := by unfold inSlot; rw [if_pos v]
theorem inSlot_neg {a : Memref sig .scVector .vmem S8x3200 .f32} {sm : DmaSem sig} {n : ℕ} (v : ¬ valid L n) :
    inSlot d L fx a sm n = iprop((∃ g, a.view.loc (thr d L) ↦{fullShare} g) ∗ semVal (thr d L, SemLoc.dma sm) 0) := by
  unfold inSlot; rw [if_neg v]
theorem outSlot_pos {a : Memref sig .scVector .vmem S25600 .f32} {sm : DmaSem sig} {m : ℕ} (h : 2 ≤ m ∧ valid L (m - 2)) :
    outSlot (F := F) d L a sm m = iprop(∃ g, Transfers.Flight countersEmb (thr d L) (SemLoc.dma sm) (default : HIx 22) NN
        iprop(oPiece (F := F) d L (m - 2) ∗ ((stg a).view.loc (thr d L) ↦[(stg a).view.set]{fullShare} g))
      ∗ (a.view.loc (thr d L) ↦[Finset.univ \ (stg a).view.set]{fullShare} g)) := by unfold outSlot; rw [if_pos h]
theorem outSlot_neg {a : Memref sig .scVector .vmem S25600 .f32} {sm : DmaSem sig} {m : ℕ} (h : ¬ (2 ≤ m ∧ valid L (m - 2))) :
    outSlot (F := F) d L a sm m = iprop((∃ g, a.view.loc (thr d L) ↦{fullShare} g) ∗ semVal (thr d L, SemLoc.dma sm) 0) := by
  unfold outSlot; rw [if_neg h]

/-- A fetch in flight, its source window spelt by any offsets equal to piece `n`'s, fills the fetch slot for `n`. -/
theorem fl_in {off : Fin 2 → ℕ} {n : ℕ} (h : off = ![6, pos L n]) (p : ∀ a, off a + S1x3200.size a ≤ S22x1600000.size a) (v : valid L n)
    (a : Memref sig .scVector .vmem S8x3200 .f32) (sm : DmaSem sig) :
    (iprop(∃ g, Transfers.Flight countersEmb (thr d L) (SemLoc.dma sm) (default : HIx 22) NN
        iprop((a.view.loc (thr d L) ↦{fullShare} g)
          ∗ (((xtW).slice (Rect.unit (s := S22x1600000) off S1x3200.size p) (fun _ => rfl)).view.loc (thr d L)
              ↦[((xtW).slice (Rect.unit (s := S22x1600000) off S1x3200.size p) (fun _ => rfl)).view.set]{fullShare} fx))) : sProp 𝕄)
      ⊢ inSlot d L fx a sm n := by
  rw [inSlot_pos d L fx v]
  iintro ⟨%g, H⟩
  have hD : (iprop((a.view.loc (thr d L) ↦{fullShare} g)
          ∗ (((xtW).slice (Rect.unit (s := S22x1600000) off S1x3200.size p) (fun _ => rfl)).view.loc (thr d L)
              ↦[((xtW).slice (Rect.unit (s := S22x1600000) off S1x3200.size p) (fun _ => rfl)).view.set]{fullShare} fx)) : sProp 𝕄)
      ⊢ iprop((a.view.loc (thr d L) ↦{fullShare} g) ∗ xtPiece d L fx n) := by
    iintro ⟨H1, H2⟩
    isplitl [H1]; · iexact H1
    iapply (Entails.of_eq (in_congr d L h p (in_inb L n) fx)); iexact H2
  iexists g
  iapply (Transfers.Flight_mono countersEmb (thr d L) hD); iexact H

/-- A write-out in flight, its destination window spelt by any offsets equal to piece `n`'s, with the rest of the
    staging buffer, fills the write-out slot for `n + 2`. -/
theorem fl_out {off : Fin 1 → ℕ} {n : ℕ} (h : off = ![pos L n]) (p : ∀ a, off a + S3200.size a ≤ S1600000.size a) (v : valid L n)
    (a : Memref sig .scVector .vmem S25600 .f32) (sm : DmaSem sig) :
    (iprop(∃ (f : Buf (Elt F) ((oW).view.loc (thr d L))) (g : Buf (Elt F) (a.view.loc (thr d L))), Transfers.Flight countersEmb (thr d L) (SemLoc.dma sm) (default : HIx 22) NN
        iprop((((oW).slice (Rect.unit (s := S1600000) off S3200.size p) (fun _ => rfl)).view.loc (thr d L)
              ↦[((oW).slice (Rect.unit (s := S1600000) off S3200.size p) (fun _ => rfl)).view.set]{fullShare} f)
          ∗ ((stg a).view.loc (thr d L) ↦[(stg a).view.set]{fullShare} g))
        ∗ (a.view.loc (thr d L) ↦[Finset.univ \ (stg a).view.set]{fullShare} g)) : sProp 𝕄)
      ⊢ outSlot (F := F) d L a sm (n + 2) := by
  rw [outSlot_pos (F := F) d L (m := n + 2) ⟨by omega, by simpa using v⟩]
  iintro ⟨%f, %g, H, R⟩
  have hD : (iprop((((oW).slice (Rect.unit (s := S1600000) off S3200.size p) (fun _ => rfl)).view.loc (thr d L)
              ↦[((oW).slice (Rect.unit (s := S1600000) off S3200.size p) (fun _ => rfl)).view.set]{fullShare} f)
          ∗ ((stg a).view.loc (thr d L) ↦[(stg a).view.set]{fullShare} g)) : sProp 𝕄)
      ⊢ iprop(oPiece (F := F) d L (n + 2 - 2) ∗ ((stg a).view.loc (thr d L) ↦[(stg a).view.set]{fullShare} g)) := by
    rw [Nat.add_sub_cancel]
    iintro ⟨H1, H2⟩
    isplitl [H1]
    · iexists f; iapply (Entails.of_eq (out_congr d L h p (out_inb L n) f)); iexact H1
    · iexact H2
  iexists g
  isplitl [H]
  · iapply (Transfers.Flight_mono countersEmb (thr d L) hD); iexact H
  · iexact R

/-! The pieces outside the slots, from one trip to the next. -/
def xCore (k : ℕ) : Finset ℕ := (Finset.range 18).filter fun n => n ≠ 2 * k ∧ n ≠ 2 * k + 1 ∧ n ≠ 2 * k + 2 ∧ n ≠ 2 * k + 3
def oCore (k : ℕ) : Finset ℕ := (Finset.range 18).filter fun n => n + 2 ≠ 2 * k ∧ n + 2 ≠ 2 * k + 1 ∧ n ≠ 2 * k ∧ n ≠ 2 * k + 1

omit [FloatOps F] in
theorem xSet_out (Φ : ℕ → sProp 𝕄) (k : ℕ) (hk : k < 8) : bigSep (xSet k) Φ = iprop(Φ (2 * k + 2) ∗ Φ (2 * k + 3) ∗ bigSep (xCore k) Φ) := by
  have e : ((xSet k).erase (2 * k + 2)).erase (2 * k + 3) = xCore k := by
    ext n; simp only [xSet, xCore, Finset.mem_erase, Finset.mem_filter, Finset.mem_range]; omega
  rw [← e]; exact two_out (by simp only [xSet, Finset.mem_filter, Finset.mem_range]; omega) (by simp only [xSet, Finset.mem_filter, Finset.mem_range]; omega) (by omega)
omit [FloatOps F] in
theorem xSet_in (Φ : ℕ → sProp 𝕄) (k : ℕ) (hk : k < 8) : bigSep (xSet (k + 1)) Φ = iprop(Φ (2 * k) ∗ Φ (2 * k + 1) ∗ bigSep (xCore k) Φ) := by
  have e : ((xSet (k + 1)).erase (2 * k)).erase (2 * k + 1) = xCore k := by
    ext n; simp only [xSet, xCore, Finset.mem_erase, Finset.mem_filter, Finset.mem_range]; omega
  rw [← e]; exact two_out (by simp only [xSet, Finset.mem_filter, Finset.mem_range]; omega) (by simp only [xSet, Finset.mem_filter, Finset.mem_range]; omega) (by omega)
omit [FloatOps F] in
theorem oSet_out (Φ : ℕ → sProp 𝕄) (k : ℕ) (hk : k < 8) : bigSep (oSet k) Φ = iprop(Φ (2 * k) ∗ Φ (2 * k + 1) ∗ bigSep (oCore k) Φ) := by
  have e : ((oSet k).erase (2 * k)).erase (2 * k + 1) = oCore k := by
    ext n; simp only [oSet, oCore, Finset.mem_erase, Finset.mem_filter, Finset.mem_range]; omega
  rw [← e]; exact two_out (by simp only [oSet, Finset.mem_filter, Finset.mem_range]; omega) (by simp only [oSet, Finset.mem_filter, Finset.mem_range]; omega) (by omega)
omit [FloatOps F] in
theorem oSet_in (Φ : ℕ → sProp 𝕄) (k : ℕ) (hk : k < 8) (hk1 : 1 ≤ k) :
    bigSep (oSet (k + 1)) Φ = iprop(Φ (2 * k - 2) ∗ Φ (2 * k - 1) ∗ bigSep (oCore k) Φ) := by
  have e : ((oSet (k + 1)).erase (2 * k - 2)).erase (2 * k - 1) = oCore k := by
    ext n; simp only [oSet, oCore, Finset.mem_erase, Finset.mem_filter, Finset.mem_range]; omega
  rw [← e]; exact two_out (by simp only [oSet, Finset.mem_filter, Finset.mem_range]; omega) (by simp only [oSet, Finset.mem_filter, Finset.mem_range]; omega) (by omega)

theorem xP_pos {n : ℕ} (v : valid L n) : xP d L fx n = xtPiece d L fx n := if_pos v
theorem oP_pos {n : ℕ} (v : valid L n) : oP (F := F) d L n = oPiece (F := F) d L n := if_pos v
theorem xP_neg {n : ℕ} (v : ¬ valid L n) : xP d L fx n = iprop(emp) := if_neg v
theorem oP_neg {n : ℕ} (v : ¬ valid L n) : oP (F := F) d L n = iprop(emp) := if_neg v

/-- Piece `n` of the result at its final contents: row 6 of the transposed argument. -/
def oQ (n : ℕ) : sProp 𝕄 :=
  if valid L n then (outM L n).view.loc (thr d L) ↦[(outM L n).view.set]{fullShare} (Cert.Spec.row 6 fx) else iprop(emp)

/-- What a tile is handed for the call: its pieces of row 6 of the transposed argument, at the argument's contents, and
    its pieces of the result at some contents. What it hands back: the same pieces of the argument, and its pieces of
    the result holding the row. -/
def goRes : sProp 𝕄 := iprop(bigSep (Finset.range 18) (xP d L fx) ∗ bigSep (Finset.range 18) (oP (F := F) d L))
def tdRes : sProp 𝕄 := iprop(bigSep (Finset.range 18) (xP d L fx) ∗ bigSep (Finset.range 18) (oQ d L fx))

end Tile

end Cert.Proof.TileK6

end
-- ==== Proof.TileK7Defs.lean ====
/-
  One vector subcore's task of copy kernel 7 (counting from 0): definitions. The task moves its pieces of row 7 of the
  transposed argument (pieces of 3200 consecutive elements, piece number 2·s + c + 32·n for the subcore (c, s) and
  n = 0, 1, … while that number is below 500) into the flat result: each piece is fetched into a staging row, copied
  16 lanes at a time into a flat staging buffer, and written out, two pieces in flight at a time. Here: the pieces as
  memrefs, the program's own spellings of them, the printed conditions as facts about the trip, the two slots' states
  between trips, and what the tile holds outside the slots.
-/
import proofs.«206869_g37898791420194_cont_8to1_b_558_20_alg».proof.Defs
import Idealize.ShloMosaic.Lib.SparseCore.Launch
import Idealize.ShloMosaic.Lib.StableHlo.Run
import Idealize.ShloMosaic.Lib.Pipeline.Kit
import Idealize.ShloMosaic.Lib.Tactic
import proofs.«206869_g37898791420194_cont_8to1_b_558_20_alg».proof.Proof.Gen.KernelIdeal
import proofs.«206869_g37898791420194_cont_8to1_b_558_20_alg».proof.Proof.Gen.KernelIdeal.Skeleton
import proofs.«206869_g37898791420194_cont_8to1_b_558_20_alg».proof.Proof.Spec

noncomputable section

namespace Cert.Proof.TileK7

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

abbrev ΛP : Labels := Pipeline.Sig Λ₀ (Fin 0) fun p => (pcfgs (F := F) p).Adm
abbrev K : SparseCore.Cfg τ sig (ΛP (F := F)) 22 := sc (F := F)
abbrev 𝒱₀ : Variants := Variants.none

abbrev UH : Type := URounds (GSem nD τ sig) ℕ
abbrev UU : Type := UH × Counters

local notation "𝕄" => MT nD τ sig (HIx 22) (Elt F) ℕ UU ℕ

local notation "xtW" => (Memref.whole Cert.KernelIdeal.main_v0_scv : Memref Cert.KernelIdeal.sig Kind.scVector Space.hbm Cert.KernelIdeal.S22x1600000 EltTy.f32)
local notation "oW" => (Memref.whole Cert.KernelIdeal.main_v8_scv : Memref Cert.KernelIdeal.sig Kind.scVector Space.hbm Cert.KernelIdeal.S1600000 EltTy.f32)
local notation "a4" => (Memref.whole Cert.KernelIdeal.cc7_scratch0 : Memref Cert.KernelIdeal.sig Kind.scVector Space.vmem Cert.KernelIdeal.S8x3200 EltTy.f32)
local notation "a5" => (Memref.whole Cert.KernelIdeal.cc7_scratch1 : Memref Cert.KernelIdeal.sig Kind.scVector Space.vmem Cert.KernelIdeal.S8x3200 EltTy.f32)
local notation "a6" => (Memref.whole Cert.KernelIdeal.cc7_scratch2 : Memref Cert.KernelIdeal.sig Kind.scVector Space.vmem Cert.KernelIdeal.S25600 EltTy.f32)
local notation "a7" => (Memref.whole Cert.KernelIdeal.cc7_scratch3 : Memref Cert.KernelIdeal.sig Kind.scVector Space.vmem Cert.KernelIdeal.S25600 EltTy.f32)

variable [FloatOps F]

section Tile

variable (d : Dev nD) (L : grid7.Coords)

abbrev cV (L : grid7.Coords) : Fin τ.nSC := (L 0).castLE hcore7
abbrev jV (L : grid7.Coords) : Fin τ.nSub := (L 1).castLE hsub7
abbrev thr (d : Dev nD) (L : grid7.Coords) : Thread nD τ := V d (cV L) (jV L)

/-- The tile's number 2·s + c, and whether it has sixteen pieces (numbers below 20) or fifteen. -/
abbrev wid (L : grid7.Coords) : ℕ := 2 * (L 1).val + (L 0).val
abbrev big (L : grid7.Coords) : Prop := wid L < 20

omit [FloatOps F] in
theorem wid_lt (L : grid7.Coords) : wid L < 32 := by
  have h0 : (L 0).val < 2 := (L 0).isLt
  have h1 : (L 1).val < 16 := (L 1).isLt
  unfold wid; omega

/-- Piece `n` of the tile exists: `n < 15`, or `n = 15` on a tile with sixteen pieces. It is the piece number
    `wid + 32·n < 500` of the row. -/
def valid (L : grid7.Coords) (n : ℕ) : Prop := n < 15 ∨ (n = 15 ∧ big L)
instance (L : grid7.Coords) (n : ℕ) : Decidable (valid L n) := by unfold valid big; infer_instance

omit [FloatOps F] in
theorem valid_iff (L : grid7.Coords) (n : ℕ) : valid L n ↔ wid L + 32 * n < 500 := by
  have := wid_lt L; unfold valid big; omega

/-- Where piece `n` starts in the row (clamped to the last piece of the row, so that the rectangle is in bounds for
    every `n`; for a valid piece the clamp is idle). -/
abbrev pos (L : grid7.Coords) (n : ℕ) : ℕ := 3200 * min (wid L + 32 * n) 499

omit [FloatOps F] in
theorem pos_valid {L : grid7.Coords} {n : ℕ} (h : valid L n) : pos L n = 6400 * (L 1).val + 3200 * (L 0).val + 102400 * n := by
  have := (valid_iff L n).mp h; unfold pos wid at *; omega

omit [FloatOps F] in
theorem in_inb (L : grid7.Coords) (n : ℕ) : ∀ a, (![7, pos L n] : Fin 2 → ℕ) a + S1x3200.size a ≤ S22x1600000.size a := by
  intro a; fin_cases a
  · show 7 + 1 ≤ 22; omega
  · show pos L n + 3200 ≤ 1600000; unfold pos; omega
omit [FloatOps F] in
theorem out_inb (L : grid7.Coords) (n : ℕ) : ∀ a, (![pos L n] : Fin 1 → ℕ) a + S3200.size a ≤ S1600000.size a := by
  intro a; fin_cases a
  show pos L n + 3200 ≤ 1600000; unfold pos; omega

/-- Piece `n` of row 7 of the transposed argument, and piece `n` of the flat result, as memrefs of the tile. -/
abbrev inM (L : grid7.Coords) (n : ℕ) : Memref sig .scVector .hbm S1x3200 .f32 :=
  (xtW).slice (Rect.unit (s := S22x1600000) ![7, pos L n] S1x3200.size (in_inb L n)) (fun _ => rfl)
abbrev outM (L : grid7.Coords) (n : ℕ) : Memref sig .scVector .hbm S3200 .f32 :=
  (oW).slice (Rect.unit (s := S1600000) ![pos L n] S3200.size (out_inb L n)) (fun _ => rfl)

/-! The program's own slices are these pieces: by the closed forms of its offset functions. -/

omit [FloatOps F] in
theorem off2 {a b : ℕ} (h : a = b) : (![7, a] : Fin 2 → ℕ) = ![7, b] := by rw [h]
omit [FloatOps F] in
theorem off1' {a b : ℕ} (h : a = b) : (![a] : Fin 1 → ℕ) = ![b] := by rw [h]

omit [FloatOps F] in
theorem off_in0 (L : grid7.Coords) (h : valid L 0) : k7_off1 L 0#32 = ![7, pos L 0] :=
  (k7_off1_eq L 0).trans (off2 (by rw [pos_valid h]; simp))
omit [FloatOps F] in
theorem off_in1 (L : grid7.Coords) (h : valid L 1) : k7_off1 L 32#32 = ![7, pos L 1] :=
  (k7_off1_eq L 1).trans (off2 (by rw [pos_valid h]; simp))
omit [FloatOps F] in
theorem off_6 (L : grid7.Coords) (t : Fin k7_t1_loop.trips) (h : valid L (2 * t.val + 2)) : k7_off6 L t = ![7, pos L (2 * t.val + 2)] :=
  (k7_off6_eq L t).trans (off2 (by rw [pos_valid h]; omega))
omit [FloatOps F] in
theorem off_11 (L : grid7.Coords) (t : Fin k7_t1_loop.trips) (h : valid L (2 * t.val + 3)) : k7_off11 L t = ![7, pos L (2 * t.val + 3)] :=
  (k7_off11_eq L t).trans (off2 (by rw [pos_valid h]; omega))
omit [FloatOps F] in
theorem off_5 (L : grid7.Coords) (t : Fin k7_t1_loop.trips) (h : valid L (2 * t.val)) : k7_off5 L t = ![pos L (2 * t.val)] :=
  (k7_off5_eq L t).trans (off1' (by rw [pos_valid h]; omega))
omit [FloatOps F] in
theorem off_10 (L : grid7.Coords) (t : Fin k7_t1_loop.trips) (h : valid L (2 * t.val + 1)) : k7_off10 L t = ![pos L (2 * t.val + 1)] :=
  (k7_off10_eq L t).trans (off1' (by rw [pos_valid h]; omega))

/-- Holding a 1 × 3200 window of the transposed argument, or a 3200 window of the result, by exactly its elements
    says the same whichever way the window's offsets are spelt. -/
theorem in_congr {off off' : Fin 2 → ℕ} (h : off = off') (p : ∀ a, off a + S1x3200.size a ≤ S22x1600000.size a)
    (p' : ∀ a, off' a + S1x3200.size a ≤ S22x1600000.size a) (f : Buf (Elt F) ((xtW).view.loc (thr d L))) :
    (((xtW).slice (Rect.unit (s := S22x1600000) off S1x3200.size p) (fun _ => rfl)).view.loc (thr d L)
        ↦[((xtW).slice (Rect.unit (s := S22x1600000) off S1x3200.size p) (fun _ => rfl)).view.set]{fullShare} f : sProp 𝕄)
      = (((xtW).slice (Rect.unit (s := S22x1600000) off' S1x3200.size p') (fun _ => rfl)).view.loc (thr d L)
        ↦[((xtW).slice (Rect.unit (s := S22x1600000) off' S1x3200.size p') (fun _ => rfl)).view.set]{fullShare} f) := by
  subst h; rfl
theorem out_congr {off off' : Fin 1 → ℕ} (h : off = off') (p : ∀ a, off a + S3200.size a ≤ S1600000.size a)
    (p' : ∀ a, off' a + S3200.size a ≤ S1600000.size a) (f : Buf (Elt F) ((oW).view.loc (thr d L))) :
    (((oW).slice (Rect.unit (s := S1600000) off S3200.size p) (fun _ => rfl)).view.loc (thr d L)
        ↦[((oW).slice (Rect.unit (s := S1600000) off S3200.size p) (fun _ => rfl)).view.set]{fullShare} f : sProp 𝕄)
      = (((oW).slice (Rect.unit (s := S1600000) off' S3200.size p') (fun _ => rfl)).view.loc (thr d L)
        ↦[((oW).slice (Rect.unit (s := S1600000) off' S3200.size p') (fun _ => rfl)).view.set]{fullShare} f) := by
  subst h; rfl

/-! The printed conditions, as facts about the trip and the tile. -/

omit [FloatOps F] in
theorem trips1 : k7_t1_loop.trips = 8 := by decide
omit [FloatOps F] in
theorem cond1_iff : ∀ (t : Fin k7_t1_loop.trips), k7_cond1 t = 1#1 ↔ 1 ≤ t.val := by decide +kernel
omit [FloatOps F] in
theorem cond2_iff : ∀ (L : grid7.Coords) (t : Fin k7_t1_loop.trips), k7_cond2 L t = 1#1 := by decide +kernel
omit [FloatOps F] in
theorem cond3_iff : ∀ (L : grid7.Coords) (t : Fin k7_t1_loop.trips), k7_cond3 L t = 1#1 ↔ t.val ≤ 6 := by decide +kernel
omit [FloatOps F] in
theorem cond4_iff : ∀ (t : Fin k7_t1_loop.trips), k7_cond4 t = 1#1 ↔ 1 ≤ t.val := by decide +kernel
omit [FloatOps F] in
theorem cond5_iff : ∀ (L : grid7.Coords) (t : Fin k7_t1_loop.trips), k7_cond5 L t = 1#1 ↔ (t.val ≤ 6 ∨ big L) := by decide +kernel
omit [FloatOps F] in
theorem cond6_iff : ∀ (L : grid7.Coords) (t : Fin k7_t1_loop.trips), k7_cond6 L t = 1#1 ↔ (t.val ≤ 5 ∨ (t.val = 6 ∧ big L)) := by decide +kernel
omit [FloatOps F] in
theorem cond7_iff : ∀ (L : grid7.Coords), k7_cond7 L = 1#1 := by decide +kernel
omit [FloatOps F] in
theorem cond8_iff : ∀ (L : grid7.Coords), k7_cond8 L = 1#1 ↔ big L := by decide +kernel

variable (O : CellTallies nD τ sig (HIx 22)) (W : Waits sig (HIx 22))
variable (fx : Buf (Elt F) ((xtW).view.loc (thr d L)))

abbrev NN : ℕ := 102400

/-- The 3200-element window of a flat staging buffer that a piece is written out from. -/
abbrev stg (a : Memref sig .scVector .vmem S25600 .f32) : Memref sig .scVector .vmem S3200 .f32 :=
  a.slice (Rect.unit (s := S25600) ![0] S3200.size inb_S25600_S3200_0) (fun _ => rfl)

/-- Piece `n` of the argument row held by exactly its elements, at the argument's contents; piece `n` of the result
    held by exactly its elements, at some contents. -/
abbrev xtPiece (n : ℕ) : sProp 𝕄 := (inM L n).view.loc (thr d L) ↦[(inM L n).view.set]{fullShare} fx
abbrev oPiece (n : ℕ) : sProp 𝕄 := iprop(∃ f, (outM L n).view.loc (thr d L) ↦[(outM L n).view.set]{fullShare} f)

/-- The lane-copy loop of a slot: the staging row keeps its contents, the flat staging buffer holds some contents. -/
def laneInv0 (g4 : Buf (Elt F) ((a4).view.loc (thr d L))) (_ : ℕ) (_ : PUnit) : sProp 𝕄 :=
  iprop(((a4).view.loc (thr d L) ↦{fullShare} g4) ∗ (∃ g, (a6).view.loc (thr d L) ↦{fullShare} g))
def laneInv1 (g5 : Buf (Elt F) ((a5).view.loc (thr d L))) (_ : ℕ) (_ : PUnit) : sProp 𝕄 :=
  iprop(((a5).view.loc (thr d L) ↦{fullShare} g5) ∗ (∃ g, (a7).view.loc (thr d L) ↦{fullShare} g))

/-- A fetch slot before trip work on piece `n`: the piece's fetch in flight (it will hand back the staging row at some
    contents, and the piece), or, when there is no such piece, the slot idle. -/
def inSlot (a : Memref sig .scVector .vmem S8x3200 .f32) (sm : DmaSem sig) (n : ℕ) : sProp 𝕄 :=
  if valid L n then
    iprop(∃ g, Transfers.Flight countersEmb (thr d L) (SemLoc.dma sm) (default : HIx 22) NN
      iprop((a.view.loc (thr d L) ↦{fullShare} g) ∗ xtPiece d L fx n))
  else iprop((∃ g, a.view.loc (thr d L) ↦{fullShare} g) ∗ semVal (thr d L, SemLoc.dma sm) 0)

/-- A write-out slot before trip work on piece `m`: piece `m - 2`'s write-out in flight (it will hand back that piece
    of the result at some contents, and the staging window), the rest of the staging buffer beside it; or idle. -/
def outSlot (a : Memref sig .scVector .vmem S25600 .f32) (sm : DmaSem sig) (m : ℕ) : sProp 𝕄 :=
  if 2 ≤ m ∧ valid L (m - 2) then
    iprop(∃ g, Transfers.Flight countersEmb (thr d L) (SemLoc.dma sm) (default : HIx 22) NN
        iprop(oPiece d L (m - 2) ∗ ((stg a).view.loc (thr d L) ↦[(stg a).view.set]{fullShare} g))
      ∗ (a.view.loc (thr d L) ↦[Finset.univ \ (stg a).view.set]{fullShare} g))
  else iprop((∃ g, a.view.loc (thr d L) ↦{fullShare} g) ∗ semVal (thr d L, SemLoc.dma sm) 0)

/-- Piece `n` when it exists, nothing otherwise. -/
def xP (n : ℕ) : sProp 𝕄 := if valid L n then xtPiece d L fx n else iprop(emp)
def oP (n : ℕ) : sProp 𝕄 := if valid L n then oPiece d L n else iprop(emp)

/-- What the tile holds outside the slots before trip `t`: every piece of the argument row but those being fetched
    (`2t`, `2t + 1`), every piece of the result but those being written out (`2t - 2`, `2t - 1`). -/
def xSet (t : ℕ) : Finset ℕ := (Finset.range 18).filter fun n => n ≠ 2 * t ∧ n ≠ 2 * t + 1
def oSet (t : ℕ) : Finset ℕ := (Finset.range 18).filter fun n => n + 2 ≠ 2 * t ∧ n + 2 ≠ 2 * t + 1

def inv (t : ℕ) (_ : PUnit) : sProp 𝕄 :=
  iprop(Transfers.MayWaits (thr d L) (none : HIx 22) O
    ∗ (∃ W', ⌜∀ p ∈ W', p ∈ W ∨ p.2 = none⌝ ∗ owes (thr d L) O W')
    ∗ bigSep (xSet t) (xP d L fx) ∗ bigSep (oSet t) (oP d L)
    ∗ inSlot d L fx a4 cc7_scratch4.sem (2 * t) ∗ outSlot d L a6 cc7_scratch6.sem (2 * t)
    ∗ inSlot d L fx a5 cc7_scratch5.sem (2 * t + 1) ∗ outSlot d L a7 cc7_scratch7.sem (2 * t + 1))

omit [FloatOps F] in
theorem two_out {Φ : ℕ → sProp 𝕄} {s : Finset ℕ} {a b : ℕ} (ha : a ∈ s) (hb : b ∈ s) (hab : a ≠ b) :
    bigSep s Φ = iprop(Φ a ∗ Φ b ∗ bigSep ((s.erase a).erase b) Φ) := by
  rw [SparseCore.bigSep_erase' ha, SparseCore.bigSep_erase' (Finset.mem_erase.mpr ⟨fun e => hab e.symm, hb⟩)]

omit [FloatOps F] in
theorem range18_split : (Finset.range 18) = insert 0 (insert 1 (xSet 0)) := by decide

theorem xRange_split (v0 : valid L 0) (v1 : valid L 1) :
    bigSep (Finset.range 18) (xP d L fx) = iprop(xtPiece d L fx 0 ∗ xtPiece d L fx 1 ∗ bigSep (xSet 0) (xP d L fx)) := by
  rw [range18_split, SparseCore.bigSep_insert' (by decide), SparseCore.bigSep_insert' (by decide)]
  unfold xP; rw [if_pos v0, if_pos v1]
omit [FloatOps F] in
theorem oSet_zero : oSet 0 = Finset.range 18 := by decide

theorem inSlot_pos {a : Memref sig .scVector .vmem S8x3200 .f32} {sm : DmaSem sig} {n : ℕ} (v : valid L n) :
    inSlot d L fx a sm n = iprop(∃ g, Transfers.Flight countersEmb (thr d L) (SemLoc.dma sm) (default : HIx 22) NN
      iprop((a.view.loc (thr d L) ↦{fullShare} g) ∗ xtPiece d L fx n)) := by unfold inSlot; rw [if_pos v]
theorem inSlot_neg {a : Memref sig .scVector .vmem S8x3200 .f32} {sm : DmaSem sig} {n : ℕ} (v : ¬ valid L n) :
    inSlot d L fx a sm n = iprop((∃ g, a.view.loc (thr d L) ↦{fullShare} g) ∗ semVal (thr d L, SemLoc.dma sm) 0) := by
  unfold inSlot; rw [if_neg v]
theorem outSlot_pos {a : Memref sig .scVector .vmem S25600 .f32} {sm : DmaSem sig} {m : ℕ} (h : 2 ≤ m ∧ valid L (m - 2)) :
    outSlot (F := F) d L a sm m = iprop(∃ g, Transfers.Flight countersEmb (thr d L) (SemLoc.dma sm) (default : HIx 22) NN
        iprop(oPiece (F := F) d L (m - 2) ∗ ((stg a).view.loc (thr d L) ↦[(stg a).view.set]{fullShare} g))
      ∗ (a.view.loc (thr d L) ↦[Finset.univ \ (stg a).view.set]{fullShare} g)) := by unfold outSlot; rw [if_pos h]
theorem outSlot_neg {a : Memref sig .scVector .vmem S25600 .f32} {sm : DmaSem sig} {m : ℕ} (h : ¬ (2 ≤ m ∧ valid L (m - 2))) :
    outSlot (F := F) d L a sm m = iprop((∃ g, a.view.loc (thr d L) ↦{fullShare} g) ∗ semVal (thr d L, SemLoc.dma sm) 0) := by
  unfold outSlot; rw [if_neg h]

/-- A fetch in flight, its source window spelt by any offsets equal to piece `n`'s, fills the fetch slot for `n`. -/
theorem fl_in {off : Fin 2 → ℕ} {n : ℕ} (h : off = ![7, pos L n]) (p : ∀ a, off a + S1x3200.size a ≤ S22x1600000.size a) (v : valid L n)
    (a : Memref sig .scVector .vmem S8x3200 .f32) (sm : DmaSem sig) :
    (iprop(∃ g, Transfers.Flight countersEmb (thr d L) (SemLoc.dma sm) (default : HIx 22) NN
        iprop((a.view.loc (thr d L) ↦{fullShare} g)
          ∗ (((xtW).slice (Rect.unit (s := S22x1600000) off S1x3200.size p) (fun _ => rfl)).view.loc (thr d L)
              ↦[((xtW).slice (Rect.unit (s := S22x1600000) off S1x3200.size p) (fun _ => rfl)).view.set]{fullShare} fx))) : sProp 𝕄)
      ⊢ inSlot d L fx a sm n := by
  rw [inSlot_pos d L fx v]
  iintro ⟨%g, H⟩
  have hD : (iprop((a.view.loc (thr d L) ↦{fullShare} g)
          ∗ (((xtW).slice (Rect.unit (s := S22x1600000) off S1x3200.size p) (fun _ => rfl)).view.loc (thr d L)
              ↦[((xtW).slice (Rect.unit (s := S22x1600000) off S1x3200.size p) (fun _ => rfl)).view.set]{fullShare} fx)) : sProp 𝕄)
      ⊢ iprop((a.view.loc (thr d L) ↦{fullShare} g) ∗ xtPiece d L fx n) := by
    iintro ⟨H1, H2⟩
    isplitl [H1]; · iexact H1
    iapply (Entails.of_eq (in_congr d L h p (in_inb L n) fx)); iexact H2
  iexists g
  iapply (Transfers.Flight_mono countersEmb (thr d L) hD); iexact H

/-- A write-out in flight, its destination window spelt by any offsets equal to piece `n`'s, with the rest of the
    staging buffer, fills the write-out slot for `n + 2`. -/
theorem fl_out {off : Fin 1 → ℕ} {n : ℕ} (h : off = ![pos L n]) (p : ∀ a, off a + S3200.size a ≤ S1600000.size a) (v : valid L n)
    (a : Memref sig .scVector .vmem S25600 .f32) (sm : DmaSem sig) :
    (iprop(∃ (f : Buf (Elt F) ((oW).view.loc (thr d L))) (g : Buf (Elt F) (a.view.loc (thr d L))), Transfers.Flight countersEmb (thr d L) (SemLoc.dma sm) (default : HIx 22) NN
        iprop((((oW).slice (Rect.unit (s := S1600000) off S3200.size p) (fun _ => rfl)).view.loc (thr d L)
              ↦[((oW).slice (Rect.unit (s := S1600000) off S3200.size p) (fun _ => rfl)).view.set]{fullShare} f)
          ∗ ((stg a).view.loc (thr d L) ↦[(stg a).view.set]{fullShare} g))
        ∗ (a.view.loc (thr d L) ↦[Finset.univ \ (stg a).view.set]{fullShare} g)) : sProp 𝕄)
      ⊢ outSlot (F := F) d L a sm (n + 2) := by
  rw [outSlot_pos (F := F) d L (m := n + 2) ⟨by omega, by simpa using v⟩]
  iintro ⟨%f, %g, H, R⟩
  have hD : (iprop((((oW).slice (Rect.unit (s := S1600000) off S3200.size p) (fun _ => rfl)).view.loc (thr d L)
              ↦[((oW).slice (Rect.unit (s := S1600000) off S3200.size p) (fun _ => rfl)).view.set]{fullShare} f)
          ∗ ((stg a).view.loc (thr d L) ↦[(stg a).view.set]{fullShare} g)) : sProp 𝕄)
      ⊢ iprop(oPiece (F := F) d L (n + 2 - 2) ∗ ((stg a).view.loc (thr d L) ↦[(stg a).view.set]{fullShare} g)) := by
    rw [Nat.add_sub_cancel]
    iintro ⟨H1, H2⟩
    isplitl [H1]
    · iexists f; iapply (Entails.of_eq (out_congr d L h p (out_inb L n) f)); iexact H1
    · iexact H2
  iexists g
  isplitl [H]
  · iapply (Transfers.Flight_mono countersEmb (thr d L) hD); iexact H
  · iexact R

/-! The pieces outside the slots, from one trip to the next. -/
def xCore (k : ℕ) : Finset ℕ := (Finset.range 18).filter fun n => n ≠ 2 * k ∧ n ≠ 2 * k + 1 ∧ n ≠ 2 * k + 2 ∧ n ≠ 2 * k + 3
def oCore (k : ℕ) : Finset ℕ := (Finset.range 18).filter fun n => n + 2 ≠ 2 * k ∧ n + 2 ≠ 2 * k + 1 ∧ n ≠ 2 * k ∧ n ≠ 2 * k + 1

omit [FloatOps F] in
theorem xSet_out (Φ : ℕ → sProp 𝕄) (k : ℕ) (hk : k < 8) : bigSep (xSet k) Φ = iprop(Φ (2 * k + 2) ∗ Φ (2 * k + 3) ∗ bigSep (xCore k) Φ) := by
  have e : ((xSet k).erase (2 * k + 2)).erase (2 * k + 3) = xCore k := by
    ext n; simp only [xSet, xCore, Finset.mem_erase, Finset.mem_filter, Finset.mem_range]; omega
  rw [← e]; exact two_out (by simp only [xSet, Finset.mem_filter, Finset.mem_range]; omega) (by simp only [xSet, Finset.mem_filter, Finset.mem_range]; omega) (by omega)
omit [FloatOps F] in
theorem xSet_in (Φ : ℕ → sProp 𝕄) (k : ℕ) (hk : k < 8) : bigSep (xSet (k + 1)) Φ = iprop(Φ (2 * k) ∗ Φ (2 * k + 1) ∗ bigSep (xCore k) Φ) := by
  have e : ((xSet (k + 1)).erase (2 * k)).erase (2 * k + 1) = xCore k := by
    ext n; simp only [xSet, xCore, Finset.mem_erase, Finset.mem_filter, Finset.mem_range]; omega
  rw [← e]; exact two_out (by simp only [xSet, Finset.mem_filter, Finset.mem_range]; omega) (by simp only [xSet, Finset.mem_filter, Finset.mem_range]; omega) (by omega)
omit [FloatOps F] in
theorem oSet_out (Φ : ℕ → sProp 𝕄) (k : ℕ) (hk : k < 8) : bigSep (oSet k) Φ = iprop(Φ (2 * k) ∗ Φ (2 * k + 1) ∗ bigSep (oCore k) Φ) := by
  have e : ((oSet k).erase (2 * k)).erase (2 * k + 1) = oCore k := by
    ext n; simp only [oSet, oCore, Finset.mem_erase, Finset.mem_filter, Finset.mem_range]; omega
  rw [← e]; exact two_out (by simp only [oSet, Finset.mem_filter, Finset.mem_range]; omega) (by simp only [oSet, Finset.mem_filter, Finset.mem_range]; omega) (by omega)
omit [FloatOps F] in
theorem oSet_in (Φ : ℕ → sProp 𝕄) (k : ℕ) (hk : k < 8) (hk1 : 1 ≤ k) :
    bigSep (oSet (k + 1)) Φ = iprop(Φ (2 * k - 2) ∗ Φ (2 * k - 1) ∗ bigSep (oCore k) Φ) := by
  have e : ((oSet (k + 1)).erase (2 * k - 2)).erase (2 * k - 1) = oCore k := by
    ext n; simp only [oSet, oCore, Finset.mem_erase, Finset.mem_filter, Finset.mem_range]; omega
  rw [← e]; exact two_out (by simp only [oSet, Finset.mem_filter, Finset.mem_range]; omega) (by simp only [oSet, Finset.mem_filter, Finset.mem_range]; omega) (by omega)

theorem xP_pos {n : ℕ} (v : valid L n) : xP d L fx n = xtPiece d L fx n := if_pos v
theorem oP_pos {n : ℕ} (v : valid L n) : oP (F := F) d L n = oPiece (F := F) d L n := if_pos v
theorem xP_neg {n : ℕ} (v : ¬ valid L n) : xP d L fx n = iprop(emp) := if_neg v
theorem oP_neg {n : ℕ} (v : ¬ valid L n) : oP (F := F) d L n = iprop(emp) := if_neg v

/-- Piece `n` of the result at its final contents: row 7 of the transposed argument. -/
def oQ (n : ℕ) : sProp 𝕄 :=
  if valid L n then (outM L n).view.loc (thr d L) ↦[(outM L n).view.set]{fullShare} (Cert.Spec.row 7 fx) else iprop(emp)

/-- What a tile is handed for the call: its pieces of row 7 of the transposed argument, at the argument's contents, and
    its pieces of the result at some contents. What it hands back: the same pieces of the argument, and its pieces of
    the result holding the row. -/
def goRes : sProp 𝕄 := iprop(bigSep (Finset.range 18) (xP d L fx) ∗ bigSep (Finset.range 18) (oP (F := F) d L))
def tdRes : sProp 𝕄 := iprop(bigSep (Finset.range 18) (xP d L fx) ∗ bigSep (Finset.range 18) (oQ d L fx))

end Tile

end Cert.Proof.TileK7

end
-- ==== Proof.TileK8Defs.lean ====
/-
  One vector subcore's task of copy kernel 8 (counting from 0): definitions. The task moves its pieces of row 8 of the
  transposed argument (pieces of 3200 consecutive elements, piece number 2·s + c + 32·n for the subcore (c, s) and
  n = 0, 1, … while that number is below 500) into the flat result: each piece is fetched into a staging row, copied
  16 lanes at a time into a flat staging buffer, and written out, two pieces in flight at a time. Here: the pieces as
  memrefs, the program's own spellings of them, the printed conditions as facts about the trip, the two slots' states
  between trips, and what the tile holds outside the slots.
-/
import proofs.«206869_g37898791420194_cont_8to1_b_558_20_alg».proof.Defs
import Idealize.ShloMosaic.Lib.SparseCore.Launch
import Idealize.ShloMosaic.Lib.StableHlo.Run
import Idealize.ShloMosaic.Lib.Pipeline.Kit
import Idealize.ShloMosaic.Lib.Tactic
import proofs.«206869_g37898791420194_cont_8to1_b_558_20_alg».proof.Proof.Gen.KernelIdeal
import proofs.«206869_g37898791420194_cont_8to1_b_558_20_alg».proof.Proof.Gen.KernelIdeal.Skeleton
import proofs.«206869_g37898791420194_cont_8to1_b_558_20_alg».proof.Proof.Spec

noncomputable section

namespace Cert.Proof.TileK8

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

abbrev ΛP : Labels := Pipeline.Sig Λ₀ (Fin 0) fun p => (pcfgs (F := F) p).Adm
abbrev K : SparseCore.Cfg τ sig (ΛP (F := F)) 22 := sc (F := F)
abbrev 𝒱₀ : Variants := Variants.none

abbrev UH : Type := URounds (GSem nD τ sig) ℕ
abbrev UU : Type := UH × Counters

local notation "𝕄" => MT nD τ sig (HIx 22) (Elt F) ℕ UU ℕ

local notation "xtW" => (Memref.whole Cert.KernelIdeal.main_v0_scv : Memref Cert.KernelIdeal.sig Kind.scVector Space.hbm Cert.KernelIdeal.S22x1600000 EltTy.f32)
local notation "oW" => (Memref.whole Cert.KernelIdeal.main_v9_scv : Memref Cert.KernelIdeal.sig Kind.scVector Space.hbm Cert.KernelIdeal.S1600000 EltTy.f32)
local notation "a4" => (Memref.whole Cert.KernelIdeal.cc8_scratch0 : Memref Cert.KernelIdeal.sig Kind.scVector Space.vmem Cert.KernelIdeal.S8x3200 EltTy.f32)
local notation "a5" => (Memref.whole Cert.KernelIdeal.cc8_scratch1 : Memref Cert.KernelIdeal.sig Kind.scVector Space.vmem Cert.KernelIdeal.S8x3200 EltTy.f32)
local notation "a6" => (Memref.whole Cert.KernelIdeal.cc8_scratch2 : Memref Cert.KernelIdeal.sig Kind.scVector Space.vmem Cert.KernelIdeal.S25600 EltTy.f32)
local notation "a7" => (Memref.whole Cert.KernelIdeal.cc8_scratch3 : Memref Cert.KernelIdeal.sig Kind.scVector Space.vmem Cert.KernelIdeal.S25600 EltTy.f32)

variable [FloatOps F]

section Tile

variable (d : Dev nD) (L : grid8.Coords)

abbrev cV (L : grid8.Coords) : Fin τ.nSC := (L 0).castLE hcore8
abbrev jV (L : grid8.Coords) : Fin τ.nSub := (L 1).castLE hsub8
abbrev thr (d : Dev nD) (L : grid8.Coords) : Thread nD τ := V d (cV L) (jV L)

/-- The tile's number 2·s + c, and whether it has sixteen pieces (numbers below 20) or fifteen. -/
abbrev wid (L : grid8.Coords) : ℕ := 2 * (L 1).val + (L 0).val
abbrev big (L : grid8.Coords) : Prop := wid L < 20

omit [FloatOps F] in
theorem wid_lt (L : grid8.Coords) : wid L < 32 := by
  have h0 : (L 0).val < 2 := (L 0).isLt
  have h1 : (L 1).val < 16 := (L 1).isLt
  unfold wid; omega

/-- Piece `n` of the tile exists: `n < 15`, or `n = 15` on a tile with sixteen pieces. It is the piece number
    `wid + 32·n < 500` of the row. -/
def valid (L : grid8.Coords) (n : ℕ) : Prop := n < 15 ∨ (n = 15 ∧ big L)
instance (L : grid8.Coords) (n : ℕ) : Decidable (valid L n) := by unfold valid big; infer_instance

omit [FloatOps F] in
theorem valid_iff (L : grid8.Coords) (n : ℕ) : valid L n ↔ wid L + 32 * n < 500 := by
  have := wid_lt L; unfold valid big; omega

/-- Where piece `n` starts in the row (clamped to the last piece of the row, so that the rectangle is in bounds for
    every `n`; for a valid piece the clamp is idle). -/
abbrev pos (L : grid8.Coords) (n : ℕ) : ℕ := 3200 * min (wid L + 32 * n) 499

omit [FloatOps F] in
theorem pos_valid {L : grid8.Coords} {n : ℕ} (h : valid L n) : pos L n = 6400 * (L 1).val + 3200 * (L 0).val + 102400 * n := by
  have := (valid_iff L n).mp h; unfold pos wid at *; omega

omit [FloatOps F] in
theorem in_inb (L : grid8.Coords) (n : ℕ) : ∀ a, (![8, pos L n] : Fin 2 → ℕ) a + S1x3200.size a ≤ S22x1600000.size a := by
  intro a; fin_cases a
  · show 8 + 1 ≤ 22; omega
  · show pos L n + 3200 ≤ 1600000; unfold pos; omega
omit [FloatOps F] in
theorem out_inb (L : grid8.Coords) (n : ℕ) : ∀ a, (![pos L n] : Fin 1 → ℕ) a + S3200.size a ≤ S1600000.size a := by
  intro a; fin_cases a
  show pos L n + 3200 ≤ 1600000; unfold pos; omega

/-- Piece `n` of row 8 of the transposed argument, and piece `n` of the flat result, as memrefs of the tile. -/
abbrev inM (L : grid8.Coords) (n : ℕ) : Memref sig .scVector .hbm S1x3200 .f32 :=
  (xtW).slice (Rect.unit (s := S22x1600000) ![8, pos L n] S1x3200.size (in_inb L n)) (fun _ => rfl)
abbrev outM (L : grid8.Coords) (n : ℕ) : Memref sig .scVector .hbm S3200 .f32 :=
  (oW).slice (Rect.unit (s := S1600000) ![pos L n] S3200.size (out_inb L n)) (fun _ => rfl)

/-! The program's own slices are these pieces: by the closed forms of its offset functions. -/

omit [FloatOps F] in
theorem off2 {a b : ℕ} (h : a = b) : (![8, a] : Fin 2 → ℕ) = ![8, b] := by rw [h]
omit [FloatOps F] in
theorem off1' {a b : ℕ} (h : a = b) : (![a] : Fin 1 → ℕ) = ![b] := by rw [h]

omit [FloatOps F] in
theorem off_in0 (L : grid8.Coords) (h : valid L 0) : k8_off1 L 0#32 = ![8, pos L 0] :=
  (k8_off1_eq L 0).trans (off2 (by rw [pos_valid h]; simp))
omit [FloatOps F] in
theorem off_in1 (L : grid8.Coords) (h : valid L 1) : k8_off1 L 32#32 = ![8, pos L 1] :=
  (k8_off1_eq L 1).trans (off2 (by rw [pos_valid h]; simp))
omit [FloatOps F] in
theorem off_6 (L : grid8.Coords) (t : Fin k8_t1_loop.trips) (h : valid L (2 * t.val + 2)) : k8_off6 L t = ![8, pos L (2 * t.val + 2)] :=
  (k8_off6_eq L t).trans (off2 (by rw [pos_valid h]; omega))
omit [FloatOps F] in
theorem off_11 (L : grid8.Coords) (t : Fin k8_t1_loop.trips) (h : valid L (2 * t.val + 3)) : k8_off11 L t = ![8, pos L (2 * t.val + 3)] :=
  (k8_off11_eq L t).trans (off2 (by rw [pos_valid h]; omega))
omit [FloatOps F] in
theorem off_5 (L : grid8.Coords) (t : Fin k8_t1_loop.trips) (h : valid L (2 * t.val)) : k8_off5 L t = ![pos L (2 * t.val)] :=
  (k8_off5_eq L t).trans (off1' (by rw [pos_valid h]; omega))
omit [FloatOps F] in
theorem off_10 (L : grid8.Coords) (t : Fin k8_t1_loop.trips) (h : valid L (2 * t.val + 1)) : k8_off10 L t = ![pos L (2 * t.val + 1)] :=
  (k8_off10_eq L t).trans (off1' (by rw [pos_valid h]; omega))

/-- Holding a 1 × 3200 window of the transposed argument, or a 3200 window of the result, by exactly its elements
    says the same whichever way the window's offsets are spelt. -/
theorem in_congr {off off' : Fin 2 → ℕ} (h : off = off') (p : ∀ a, off a + S1x3200.size a ≤ S22x1600000.size a)
    (p' : ∀ a, off' a + S1x3200.size a ≤ S22x1600000.size a) (f : Buf (Elt F) ((xtW).view.loc (thr d L))) :
    (((xtW).slice (Rect.unit (s := S22x1600000) off S1x3200.size p) (fun _ => rfl)).view.loc (thr d L)
        ↦[((xtW).slice (Rect.unit (s := S22x1600000) off S1x3200.size p) (fun _ => rfl)).view.set]{fullShare} f : sProp 𝕄)
      = (((xtW).slice (Rect.unit (s := S22x1600000) off' S1x3200.size p') (fun _ => rfl)).view.loc (thr d L)
        ↦[((xtW).slice (Rect.unit (s := S22x1600000) off' S1x3200.size p') (fun _ => rfl)).view.set]{fullShare} f) := by
  subst h; rfl
theorem out_congr {off off' : Fin 1 → ℕ} (h : off = off') (p : ∀ a, off a + S3200.size a ≤ S1600000.size a)
    (p' : ∀ a, off' a + S3200.size a ≤ S1600000.size a) (f : Buf (Elt F) ((oW).view.loc (thr d L))) :
    (((oW).slice (Rect.unit (s := S1600000) off S3200.size p) (fun _ => rfl)).view.loc (thr d L)
        ↦[((oW).slice (Rect.unit (s := S1600000) off S3200.size p) (fun _ => rfl)).view.set]{fullShare} f : sProp 𝕄)
      = (((oW).slice (Rect.unit (s := S1600000) off' S3200.size p') (fun _ => rfl)).view.loc (thr d L)
        ↦[((oW).slice (Rect.unit (s := S1600000) off' S3200.size p') (fun _ => rfl)).view.set]{fullShare} f) := by
  subst h; rfl

/-! The printed conditions, as facts about the trip and the tile. -/

omit [FloatOps F] in
theorem trips1 : k8_t1_loop.trips = 8 := by decide
omit [FloatOps F] in
theorem cond1_iff : ∀ (t : Fin k8_t1_loop.trips), k8_cond1 t = 1#1 ↔ 1 ≤ t.val := by decide +kernel
omit [FloatOps F] in
theorem cond2_iff : ∀ (L : grid8.Coords) (t : Fin k8_t1_loop.trips), k8_cond2 L t = 1#1 := by decide +kernel
omit [FloatOps F] in
theorem cond3_iff : ∀ (L : grid8.Coords) (t : Fin k8_t1_loop.trips), k8_cond3 L t = 1#1 ↔ t.val ≤ 6 := by decide +kernel
omit [FloatOps F] in
theorem cond4_iff : ∀ (t : Fin k8_t1_loop.trips), k8_cond4 t = 1#1 ↔ 1 ≤ t.val := by decide +kernel
omit [FloatOps F] in
theorem cond5_iff : ∀ (L : grid8.Coords) (t : Fin k8_t1_loop.trips), k8_cond5 L t = 1#1 ↔ (t.val ≤ 6 ∨ big L) := by decide +kernel
omit [FloatOps F] in
theorem cond6_iff : ∀ (L : grid8.Coords) (t : Fin k8_t1_loop.trips), k8_cond6 L t = 1#1 ↔ (t.val ≤ 5 ∨ (t.val = 6 ∧ big L)) := by decide +kernel
omit [FloatOps F] in
theorem cond7_iff : ∀ (L : grid8.Coords), k8_cond7 L = 1#1 := by decide +kernel
omit [FloatOps F] in
theorem cond8_iff : ∀ (L : grid8.Coords), k8_cond8 L = 1#1 ↔ big L := by decide +kernel

variable (O : CellTallies nD τ sig (HIx 22)) (W : Waits sig (HIx 22))
variable (fx : Buf (Elt F) ((xtW).view.loc (thr d L)))

abbrev NN : ℕ := 102400

/-- The 3200-element window of a flat staging buffer that a piece is written out from. -/
abbrev stg (a : Memref sig .scVector .vmem S25600 .f32) : Memref sig .scVector .vmem S3200 .f32 :=
  a.slice (Rect.unit (s := S25600) ![0] S3200.size inb_S25600_S3200_0) (fun _ => rfl)

/-- Piece `n` of the argument row held by exactly its elements, at the argument's contents; piece `n` of the result
    held by exactly its elements, at some contents. -/
abbrev xtPiece (n : ℕ) : sProp 𝕄 := (inM L n).view.loc (thr d L) ↦[(inM L n).view.set]{fullShare} fx
abbrev oPiece (n : ℕ) : sProp 𝕄 := iprop(∃ f, (outM L n).view.loc (thr d L) ↦[(outM L n).view.set]{fullShare} f)

/-- The lane-copy loop of a slot: the staging row keeps its contents, the flat staging buffer holds some contents. -/
def laneInv0 (g4 : Buf (Elt F) ((a4).view.loc (thr d L))) (_ : ℕ) (_ : PUnit) : sProp 𝕄 :=
  iprop(((a4).view.loc (thr d L) ↦{fullShare} g4) ∗ (∃ g, (a6).view.loc (thr d L) ↦{fullShare} g))
def laneInv1 (g5 : Buf (Elt F) ((a5).view.loc (thr d L))) (_ : ℕ) (_ : PUnit) : sProp 𝕄 :=
  iprop(((a5).view.loc (thr d L) ↦{fullShare} g5) ∗ (∃ g, (a7).view.loc (thr d L) ↦{fullShare} g))

/-- A fetch slot before trip work on piece `n`: the piece's fetch in flight (it will hand back the staging row at some
    contents, and the piece), or, when there is no such piece, the slot idle. -/
def inSlot (a : Memref sig .scVector .vmem S8x3200 .f32) (sm : DmaSem sig) (n : ℕ) : sProp 𝕄 :=
  if valid L n then
    iprop(∃ g, Transfers.Flight countersEmb (thr d L) (SemLoc.dma sm) (default : HIx 22) NN
      iprop((a.view.loc (thr d L) ↦{fullShare} g) ∗ xtPiece d L fx n))
  else iprop((∃ g, a.view.loc (thr d L) ↦{fullShare} g) ∗ semVal (thr d L, SemLoc.dma sm) 0)

/-- A write-out slot before trip work on piece `m`: piece `m - 2`'s write-out in flight (it will hand back that piece
    of the result at some contents, and the staging window), the rest of the staging buffer beside it; or idle. -/
def outSlot (a : Memref sig .scVector .vmem S25600 .f32) (sm : DmaSem sig) (m : ℕ) : sProp 𝕄 :=
  if 2 ≤ m ∧ valid L (m - 2) then
    iprop(∃ g, Transfers.Flight countersEmb (thr d L) (SemLoc.dma sm) (default : HIx 22) NN
        iprop(oPiece d L (m - 2) ∗ ((stg a).view.loc (thr d L) ↦[(stg a).view.set]{fullShare} g))
      ∗ (a.view.loc (thr d L) ↦[Finset.univ \ (stg a).view.set]{fullShare} g))
  else iprop((∃ g, a.view.loc (thr d L) ↦{fullShare} g) ∗ semVal (thr d L, SemLoc.dma sm) 0)

/-- Piece `n` when it exists, nothing otherwise. -/
def xP (n : ℕ) : sProp 𝕄 := if valid L n then xtPiece d L fx n else iprop(emp)
def oP (n : ℕ) : sProp 𝕄 := if valid L n then oPiece d L n else iprop(emp)

/-- What the tile holds outside the slots before trip `t`: every piece of the argument row but those being fetched
    (`2t`, `2t + 1`), every piece of the result but those being written out (`2t - 2`, `2t - 1`). -/
def xSet (t : ℕ) : Finset ℕ := (Finset.range 18).filter fun n => n ≠ 2 * t ∧ n ≠ 2 * t + 1
def oSet (t : ℕ) : Finset ℕ := (Finset.range 18).filter fun n => n + 2 ≠ 2 * t ∧ n + 2 ≠ 2 * t + 1

def inv (t : ℕ) (_ : PUnit) : sProp 𝕄 :=
  iprop(Transfers.MayWaits (thr d L) (none : HIx 22) O
    ∗ (∃ W', ⌜∀ p ∈ W', p ∈ W ∨ p.2 = none⌝ ∗ owes (thr d L) O W')
    ∗ bigSep (xSet t) (xP d L fx) ∗ bigSep (oSet t) (oP d L)
    ∗ inSlot d L fx a4 cc8_scratch4.sem (2 * t) ∗ outSlot d L a6 cc8_scratch6.sem (2 * t)
    ∗ inSlot d L fx a5 cc8_scratch5.sem (2 * t + 1) ∗ outSlot d L a7 cc8_scratch7.sem (2 * t + 1))

omit [FloatOps F] in
theorem two_out {Φ : ℕ → sProp 𝕄} {s : Finset ℕ} {a b : ℕ} (ha : a ∈ s) (hb : b ∈ s) (hab : a ≠ b) :
    bigSep s Φ = iprop(Φ a ∗ Φ b ∗ bigSep ((s.erase a).erase b) Φ) := by
  rw [SparseCore.bigSep_erase' ha, SparseCore.bigSep_erase' (Finset.mem_erase.mpr ⟨fun e => hab e.symm, hb⟩)]

omit [FloatOps F] in
theorem range18_split : (Finset.range 18) = insert 0 (insert 1 (xSet 0)) := by decide

theorem xRange_split (v0 : valid L 0) (v1 : valid L 1) :
    bigSep (Finset.range 18) (xP d L fx) = iprop(xtPiece d L fx 0 ∗ xtPiece d L fx 1 ∗ bigSep (xSet 0) (xP d L fx)) := by
  rw [range18_split, SparseCore.bigSep_insert' (by decide), SparseCore.bigSep_insert' (by decide)]
  unfold xP; rw [if_pos v0, if_pos v1]
omit [FloatOps F] in
theorem oSet_zero : oSet 0 = Finset.range 18 := by decide

theorem inSlot_pos {a : Memref sig .scVector .vmem S8x3200 .f32} {sm : DmaSem sig} {n : ℕ} (v : valid L n) :
    inSlot d L fx a sm n = iprop(∃ g, Transfers.Flight countersEmb (thr d L) (SemLoc.dma sm) (default : HIx 22) NN
      iprop((a.view.loc (thr d L) ↦{fullShare} g) ∗ xtPiece d L fx n)) := by unfold inSlot; rw [if_pos v]
theorem inSlot_neg {a : Memref sig .scVector .vmem S8x3200 .f32} {sm : DmaSem sig} {n : ℕ} (v : ¬ valid L n) :
    inSlot d L fx a sm n = iprop((∃ g, a.view.loc (thr d L) ↦{fullShare} g) ∗ semVal (thr d L, SemLoc.dma sm) 0) := by
  unfold inSlot; rw [if_neg v]
theorem outSlot_pos {a : Memref sig .scVector .vmem S25600 .f32} {sm : DmaSem sig} {m : ℕ} (h : 2 ≤ m ∧ valid L (m - 2)) :
    outSlot (F := F) d L a sm m = iprop(∃ g, Transfers.Flight countersEmb (thr d L) (SemLoc.dma sm) (default : HIx 22) NN
        iprop(oPiece (F := F) d L (m - 2) ∗ ((stg a).view.loc (thr d L) ↦[(stg a).view.set]{fullShare} g))
      ∗ (a.view.loc (thr d L) ↦[Finset.univ \ (stg a).view.set]{fullShare} g)) := by unfold outSlot; rw [if_pos h]
theorem outSlot_neg {a : Memref sig .scVector .vmem S25600 .f32} {sm : DmaSem sig} {m : ℕ} (h : ¬ (2 ≤ m ∧ valid L (m - 2))) :
    outSlot (F := F) d L a sm m = iprop((∃ g, a.view.loc (thr d L) ↦{fullShare} g) ∗ semVal (thr d L, SemLoc.dma sm) 0) := by
  unfold outSlot; rw [if_neg h]

/-- A fetch in flight, its source window spelt by any offsets equal to piece `n`'s, fills the fetch slot for `n`. -/
theorem fl_in {off : Fin 2 → ℕ} {n : ℕ} (h : off = ![8, pos L n]) (p : ∀ a, off a + S1x3200.size a ≤ S22x1600000.size a) (v : valid L n)
    (a : Memref sig .scVector .vmem S8x3200 .f32) (sm : DmaSem sig) :
    (iprop(∃ g, Transfers.Flight countersEmb (thr d L) (SemLoc.dma sm) (default : HIx 22) NN
        iprop((a.view.loc (thr d L) ↦{fullShare} g)
          ∗ (((xtW).slice (Rect.unit (s := S22x1600000) off S1x3200.size p) (fun _ => rfl)).view.loc (thr d L)
              ↦[((xtW).slice (Rect.unit (s := S22x1600000) off S1x3200.size p) (fun _ => rfl)).view.set]{fullShare} fx))) : sProp 𝕄)
      ⊢ inSlot d L fx a sm n := by
  rw [inSlot_pos d L fx v]
  iintro ⟨%g, H⟩
  have hD : (iprop((a.view.loc (thr d L) ↦{fullShare} g)
          ∗ (((xtW).slice (Rect.unit (s := S22x1600000) off S1x3200.size p) (fun _ => rfl)).view.loc (thr d L)
              ↦[((xtW).slice (Rect.unit (s := S22x1600000) off S1x3200.size p) (fun _ => rfl)).view.set]{fullShare} fx)) : sProp 𝕄)
      ⊢ iprop((a.view.loc (thr d L) ↦{fullShare} g) ∗ xtPiece d L fx n) := by
    iintro ⟨H1, H2⟩
    isplitl [H1]; · iexact H1
    iapply (Entails.of_eq (in_congr d L h p (in_inb L n) fx)); iexact H2
  iexists g
  iapply (Transfers.Flight_mono countersEmb (thr d L) hD); iexact H

/-- A write-out in flight, its destination window spelt by any offsets equal to piece `n`'s, with the rest of the
    staging buffer, fills the write-out slot for `n + 2`. -/
theorem fl_out {off : Fin 1 → ℕ} {n : ℕ} (h : off = ![pos L n]) (p : ∀ a, off a + S3200.size a ≤ S1600000.size a) (v : valid L n)
    (a : Memref sig .scVector .vmem S25600 .f32) (sm : DmaSem sig) :
    (iprop(∃ (f : Buf (Elt F) ((oW).view.loc (thr d L))) (g : Buf (Elt F) (a.view.loc (thr d L))), Transfers.Flight countersEmb (thr d L) (SemLoc.dma sm) (default : HIx 22) NN
        iprop((((oW).slice (Rect.unit (s := S1600000) off S3200.size p) (fun _ => rfl)).view.loc (thr d L)
              ↦[((oW).slice (Rect.unit (s := S1600000) off S3200.size p) (fun _ => rfl)).view.set]{fullShare} f)
          ∗ ((stg a).view.loc (thr d L) ↦[(stg a).view.set]{fullShare} g))
        ∗ (a.view.loc (thr d L) ↦[Finset.univ \ (stg a).view.set]{fullShare} g)) : sProp 𝕄)
      ⊢ outSlot (F := F) d L a sm (n + 2) := by
  rw [outSlot_pos (F := F) d L (m := n + 2) ⟨by omega, by simpa using v⟩]
  iintro ⟨%f, %g, H, R⟩
  have hD : (iprop((((oW).slice (Rect.unit (s := S1600000) off S3200.size p) (fun _ => rfl)).view.loc (thr d L)
              ↦[((oW).slice (Rect.unit (s := S1600000) off S3200.size p) (fun _ => rfl)).view.set]{fullShare} f)
          ∗ ((stg a).view.loc (thr d L) ↦[(stg a).view.set]{fullShare} g)) : sProp 𝕄)
      ⊢ iprop(oPiece (F := F) d L (n + 2 - 2) ∗ ((stg a).view.loc (thr d L) ↦[(stg a).view.set]{fullShare} g)) := by
    rw [Nat.add_sub_cancel]
    iintro ⟨H1, H2⟩
    isplitl [H1]
    · iexists f; iapply (Entails.of_eq (out_congr d L h p (out_inb L n) f)); iexact H1
    · iexact H2
  iexists g
  isplitl [H]
  · iapply (Transfers.Flight_mono countersEmb (thr d L) hD); iexact H
  · iexact R

/-! The pieces outside the slots, from one trip to the next. -/
def xCore (k : ℕ) : Finset ℕ := (Finset.range 18).filter fun n => n ≠ 2 * k ∧ n ≠ 2 * k + 1 ∧ n ≠ 2 * k + 2 ∧ n ≠ 2 * k + 3
def oCore (k : ℕ) : Finset ℕ := (Finset.range 18).filter fun n => n + 2 ≠ 2 * k ∧ n + 2 ≠ 2 * k + 1 ∧ n ≠ 2 * k ∧ n ≠ 2 * k + 1

omit [FloatOps F] in
theorem xSet_out (Φ : ℕ → sProp 𝕄) (k : ℕ) (hk : k < 8) : bigSep (xSet k) Φ = iprop(Φ (2 * k + 2) ∗ Φ (2 * k + 3) ∗ bigSep (xCore k) Φ) := by
  have e : ((xSet k).erase (2 * k + 2)).erase (2 * k + 3) = xCore k := by
    ext n; simp only [xSet, xCore, Finset.mem_erase, Finset.mem_filter, Finset.mem_range]; omega
  rw [← e]; exact two_out (by simp only [xSet, Finset.mem_filter, Finset.mem_range]; omega) (by simp only [xSet, Finset.mem_filter, Finset.mem_range]; omega) (by omega)
omit [FloatOps F] in
theorem xSet_in (Φ : ℕ → sProp 𝕄) (k : ℕ) (hk : k < 8) : bigSep (xSet (k + 1)) Φ = iprop(Φ (2 * k) ∗ Φ (2 * k + 1) ∗ bigSep (xCore k) Φ) := by
  have e : ((xSet (k + 1)).erase (2 * k)).erase (2 * k + 1) = xCore k := by
    ext n; simp only [xSet, xCore, Finset.mem_erase, Finset.mem_filter, Finset.mem_range]; omega
  rw [← e]; exact two_out (by simp only [xSet, Finset.mem_filter, Finset.mem_range]; omega) (by simp only [xSet, Finset.mem_filter, Finset.mem_range]; omega) (by omega)
omit [FloatOps F] in
theorem oSet_out (Φ : ℕ → sProp 𝕄) (k : ℕ) (hk : k < 8) : bigSep (oSet k) Φ = iprop(Φ (2 * k) ∗ Φ (2 * k + 1) ∗ bigSep (oCore k) Φ) := by
  have e : ((oSet k).erase (2 * k)).erase (2 * k + 1) = oCore k := by
    ext n; simp only [oSet, oCore, Finset.mem_erase, Finset.mem_filter, Finset.mem_range]; omega
  rw [← e]; exact two_out (by simp only [oSet, Finset.mem_filter, Finset.mem_range]; omega) (by simp only [oSet, Finset.mem_filter, Finset.mem_range]; omega) (by omega)
omit [FloatOps F] in
theorem oSet_in (Φ : ℕ → sProp 𝕄) (k : ℕ) (hk : k < 8) (hk1 : 1 ≤ k) :
    bigSep (oSet (k + 1)) Φ = iprop(Φ (2 * k - 2) ∗ Φ (2 * k - 1) ∗ bigSep (oCore k) Φ) := by
  have e : ((oSet (k + 1)).erase (2 * k - 2)).erase (2 * k - 1) = oCore k := by
    ext n; simp only [oSet, oCore, Finset.mem_erase, Finset.mem_filter, Finset.mem_range]; omega
  rw [← e]; exact two_out (by simp only [oSet, Finset.mem_filter, Finset.mem_range]; omega) (by simp only [oSet, Finset.mem_filter, Finset.mem_range]; omega) (by omega)

theorem xP_pos {n : ℕ} (v : valid L n) : xP d L fx n = xtPiece d L fx n := if_pos v
theorem oP_pos {n : ℕ} (v : valid L n) : oP (F := F) d L n = oPiece (F := F) d L n := if_pos v
theorem xP_neg {n : ℕ} (v : ¬ valid L n) : xP d L fx n = iprop(emp) := if_neg v
theorem oP_neg {n : ℕ} (v : ¬ valid L n) : oP (F := F) d L n = iprop(emp) := if_neg v

/-- Piece `n` of the result at its final contents: row 8 of the transposed argument. -/
def oQ (n : ℕ) : sProp 𝕄 :=
  if valid L n then (outM L n).view.loc (thr d L) ↦[(outM L n).view.set]{fullShare} (Cert.Spec.row 8 fx) else iprop(emp)

/-- What a tile is handed for the call: its pieces of row 8 of the transposed argument, at the argument's contents, and
    its pieces of the result at some contents. What it hands back: the same pieces of the argument, and its pieces of
    the result holding the row. -/
def goRes : sProp 𝕄 := iprop(bigSep (Finset.range 18) (xP d L fx) ∗ bigSep (Finset.range 18) (oP (F := F) d L))
def tdRes : sProp 𝕄 := iprop(bigSep (Finset.range 18) (xP d L fx) ∗ bigSep (Finset.range 18) (oQ d L fx))

end Tile

end Cert.Proof.TileK8

end
-- ==== Proof.TileK9Defs.lean ====
/-
  One vector subcore's task of copy kernel 9 (counting from 0): definitions. The task moves its pieces of row 9 of the
  transposed argument (pieces of 3200 consecutive elements, piece number 2·s + c + 32·n for the subcore (c, s) and
  n = 0, 1, … while that number is below 500) into the flat result: each piece is fetched into a staging row, copied
  16 lanes at a time into a flat staging buffer, and written out, two pieces in flight at a time. Here: the pieces as
  memrefs, the program's own spellings of them, the printed conditions as facts about the trip, the two slots' states
  between trips, and what the tile holds outside the slots.
-/
import proofs.«206869_g37898791420194_cont_8to1_b_558_20_alg».proof.Defs
import Idealize.ShloMosaic.Lib.SparseCore.Launch
import Idealize.ShloMosaic.Lib.StableHlo.Run
import Idealize.ShloMosaic.Lib.Pipeline.Kit
import Idealize.ShloMosaic.Lib.Tactic
import proofs.«206869_g37898791420194_cont_8to1_b_558_20_alg».proof.Proof.Gen.KernelIdeal
import proofs.«206869_g37898791420194_cont_8to1_b_558_20_alg».proof.Proof.Gen.KernelIdeal.Skeleton
import proofs.«206869_g37898791420194_cont_8to1_b_558_20_alg».proof.Proof.Spec

noncomputable section

namespace Cert.Proof.TileK9

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

abbrev ΛP : Labels := Pipeline.Sig Λ₀ (Fin 0) fun p => (pcfgs (F := F) p).Adm
abbrev K : SparseCore.Cfg τ sig (ΛP (F := F)) 22 := sc (F := F)
abbrev 𝒱₀ : Variants := Variants.none

abbrev UH : Type := URounds (GSem nD τ sig) ℕ
abbrev UU : Type := UH × Counters

local notation "𝕄" => MT nD τ sig (HIx 22) (Elt F) ℕ UU ℕ

local notation "xtW" => (Memref.whole Cert.KernelIdeal.main_v0_scv : Memref Cert.KernelIdeal.sig Kind.scVector Space.hbm Cert.KernelIdeal.S22x1600000 EltTy.f32)
local notation "oW" => (Memref.whole Cert.KernelIdeal.main_v10_scv : Memref Cert.KernelIdeal.sig Kind.scVector Space.hbm Cert.KernelIdeal.S1600000 EltTy.f32)
local notation "a4" => (Memref.whole Cert.KernelIdeal.cc9_scratch0 : Memref Cert.KernelIdeal.sig Kind.scVector Space.vmem Cert.KernelIdeal.S8x3200 EltTy.f32)
local notation "a5" => (Memref.whole Cert.KernelIdeal.cc9_scratch1 : Memref Cert.KernelIdeal.sig Kind.scVector Space.vmem Cert.KernelIdeal.S8x3200 EltTy.f32)
local notation "a6" => (Memref.whole Cert.KernelIdeal.cc9_scratch2 : Memref Cert.KernelIdeal.sig Kind.scVector Space.vmem Cert.KernelIdeal.S25600 EltTy.f32)
local notation "a7" => (Memref.whole Cert.KernelIdeal.cc9_scratch3 : Memref Cert.KernelIdeal.sig Kind.scVector Space.vmem Cert.KernelIdeal.S25600 EltTy.f32)

variable [FloatOps F]

section Tile

variable (d : Dev nD) (L : grid9.Coords)

abbrev cV (L : grid9.Coords) : Fin τ.nSC := (L 0).castLE hcore9
abbrev jV (L : grid9.Coords) : Fin τ.nSub := (L 1).castLE hsub9
abbrev thr (d : Dev nD) (L : grid9.Coords) : Thread nD τ := V d (cV L) (jV L)

/-- The tile's number 2·s + c, and whether it has sixteen pieces (numbers below 20) or fifteen. -/
abbrev wid (L : grid9.Coords) : ℕ := 2 * (L 1).val + (L 0).val
abbrev big (L : grid9.Coords) : Prop := wid L < 20

omit [FloatOps F] in
theorem wid_lt (L : grid9.Coords) : wid L < 32 := by
  have h0 : (L 0).val < 2 := (L 0).isLt
  have h1 : (L 1).val < 16 := (L 1).isLt
  unfold wid; omega

/-- Piece `n` of the tile exists: `n < 15`, or `n = 15` on a tile with sixteen pieces. It is the piece number
    `wid + 32·n < 500` of the row. -/
def valid (L : grid9.Coords) (n : ℕ) : Prop := n < 15 ∨ (n = 15 ∧ big L)
instance (L : grid9.Coords) (n : ℕ) : Decidable (valid L n) := by unfold valid big; infer_instance

omit [FloatOps F] in
theorem valid_iff (L : grid9.Coords) (n : ℕ) : valid L n ↔ wid L + 32 * n < 500 := by
  have := wid_lt L; unfold valid big; omega

/-- Where piece `n` starts in the row (clamped to the last piece of the row, so that the rectangle is in bounds for
    every `n`; for a valid piece the clamp is idle). -/
abbrev pos (L : grid9.Coords) (n : ℕ) : ℕ := 3200 * min (wid L + 32 * n) 499

omit [FloatOps F] in
theorem pos_valid {L : grid9.Coords} {n : ℕ} (h : valid L n) : pos L n = 6400 * (L 1).val + 3200 * (L 0).val + 102400 * n := by
  have := (valid_iff L n).mp h; unfold pos wid at *; omega

omit [FloatOps F] in
theorem in_inb (L : grid9.Coords) (n : ℕ) : ∀ a, (![9, pos L n] : Fin 2 → ℕ) a + S1x3200.size a ≤ S22x1600000.size a := by
  intro a; fin_cases a
  · show 9 + 1 ≤ 22; omega
  · show pos L n + 3200 ≤ 1600000; unfold pos; omega
omit [FloatOps F] in
theorem out_inb (L : grid9.Coords) (n : ℕ) : ∀ a, (![pos L n] : Fin 1 → ℕ) a + S3200.size a ≤ S1600000.size a := by
  intro a; fin_cases a
  show pos L n + 3200 ≤ 1600000; unfold pos; omega

/-- Piece `n` of row 9 of the transposed argument, and piece `n` of the flat result, as memrefs of the tile. -/
abbrev inM (L : grid9.Coords) (n : ℕ) : Memref sig .scVector .hbm S1x3200 .f32 :=
  (xtW).slice (Rect.unit (s := S22x1600000) ![9, pos L n] S1x3200.size (in_inb L n)) (fun _ => rfl)
abbrev outM (L : grid9.Coords) (n : ℕ) : Memref sig .scVector .hbm S3200 .f32 :=
  (oW).slice (Rect.unit (s := S1600000) ![pos L n] S3200.size (out_inb L n)) (fun _ => rfl)

/-! The program's own slices are these pieces: by the closed forms of its offset functions. -/

omit [FloatOps F] in
theorem off2 {a b : ℕ} (h : a = b) : (![9, a] : Fin 2 → ℕ) = ![9, b] := by rw [h]
omit [FloatOps F] in
theorem off1' {a b : ℕ} (h : a = b) : (![a] : Fin 1 → ℕ) = ![b] := by rw [h]

omit [FloatOps F] in
theorem off_in0 (L : grid9.Coords) (h : valid L 0) : k9_off1 L 0#32 = ![9, pos L 0] :=
  (k9_off1_eq L 0).trans (off2 (by rw [pos_valid h]; simp))
omit [FloatOps F] in
theorem off_in1 (L : grid9.Coords) (h : valid L 1) : k9_off1 L 32#32 = ![9, pos L 1] :=
  (k9_off1_eq L 1).trans (off2 (by rw [pos_valid h]; simp))
omit [FloatOps F] in
theorem off_6 (L : grid9.Coords) (t : Fin k9_t1_loop.trips) (h : valid L (2 * t.val + 2)) : k9_off6 L t = ![9, pos L (2 * t.val + 2)] :=
  (k9_off6_eq L t).trans (off2 (by rw [pos_valid h]; omega))
omit [FloatOps F] in
theorem off_11 (L : grid9.Coords) (t : Fin k9_t1_loop.trips) (h : valid L (2 * t.val + 3)) : k9_off11 L t = ![9, pos L (2 * t.val + 3)] :=
  (k9_off11_eq L t).trans (off2 (by rw [pos_valid h]; omega))
omit [FloatOps F] in
theorem off_5 (L : grid9.Coords) (t : Fin k9_t1_loop.trips) (h : valid L (2 * t.val)) : k9_off5 L t = ![pos L (2 * t.val)] :=
  (k9_off5_eq L t).trans (off1' (by rw [pos_valid h]; omega))
omit [FloatOps F] in
theorem off_10 (L : grid9.Coords) (t : Fin k9_t1_loop.trips) (h : valid L (2 * t.val + 1)) : k9_off10 L t = ![pos L (2 * t.val + 1)] :=
  (k9_off10_eq L t).trans (off1' (by rw [pos_valid h]; omega))

/-- Holding a 1 × 3200 window of the transposed argument, or a 3200 window of the result, by exactly its elements
    says the same whichever way the window's offsets are spelt. -/
theorem in_congr {off off' : Fin 2 → ℕ} (h : off = off') (p : ∀ a, off a + S1x3200.size a ≤ S22x1600000.size a)
    (p' : ∀ a, off' a + S1x3200.size a ≤ S22x1600000.size a) (f : Buf (Elt F) ((xtW).view.loc (thr d L))) :
    (((xtW).slice (Rect.unit (s := S22x1600000) off S1x3200.size p) (fun _ => rfl)).view.loc (thr d L)
        ↦[((xtW).slice (Rect.unit (s := S22x1600000) off S1x3200.size p) (fun _ => rfl)).view.set]{fullShare} f : sProp 𝕄)
      = (((xtW).slice (Rect.unit (s := S22x1600000) off' S1x3200.size p') (fun _ => rfl)).view.loc (thr d L)
        ↦[((xtW).slice (Rect.unit (s := S22x1600000) off' S1x3200.size p') (fun _ => rfl)).view.set]{fullShare} f) := by
  subst h; rfl
theorem out_congr {off off' : Fin 1 → ℕ} (h : off = off') (p : ∀ a, off a + S3200.size a ≤ S1600000.size a)
    (p' : ∀ a, off' a + S3200.size a ≤ S1600000.size a) (f : Buf (Elt F) ((oW).view.loc (thr d L))) :
    (((oW).slice (Rect.unit (s := S1600000) off S3200.size p) (fun _ => rfl)).view.loc (thr d L)
        ↦[((oW).slice (Rect.unit (s := S1600000) off S3200.size p) (fun _ => rfl)).view.set]{fullShare} f : sProp 𝕄)
      = (((oW).slice (Rect.unit (s := S1600000) off' S3200.size p') (fun _ => rfl)).view.loc (thr d L)
        ↦[((oW).slice (Rect.unit (s := S1600000) off' S3200.size p') (fun _ => rfl)).view.set]{fullShare} f) := by
  subst h; rfl

/-! The printed conditions, as facts about the trip and the tile. -/

omit [FloatOps F] in
theorem trips1 : k9_t1_loop.trips = 8 := by decide
omit [FloatOps F] in
theorem cond1_iff : ∀ (t : Fin k9_t1_loop.trips), k9_cond1 t = 1#1 ↔ 1 ≤ t.val := by decide +kernel
omit [FloatOps F] in
theorem cond2_iff : ∀ (L : grid9.Coords) (t : Fin k9_t1_loop.trips), k9_cond2 L t = 1#1 := by decide +kernel
omit [FloatOps F] in
theorem cond3_iff : ∀ (L : grid9.Coords) (t : Fin k9_t1_loop.trips), k9_cond3 L t = 1#1 ↔ t.val ≤ 6 := by decide +kernel
omit [FloatOps F] in
theorem cond4_iff : ∀ (t : Fin k9_t1_loop.trips), k9_cond4 t = 1#1 ↔ 1 ≤ t.val := by decide +kernel
omit [FloatOps F] in
theorem cond5_iff : ∀ (L : grid9.Coords) (t : Fin k9_t1_loop.trips), k9_cond5 L t = 1#1 ↔ (t.val ≤ 6 ∨ big L) := by decide +kernel
omit [FloatOps F] in
theorem cond6_iff : ∀ (L : grid9.Coords) (t : Fin k9_t1_loop.trips), k9_cond6 L t = 1#1 ↔ (t.val ≤ 5 ∨ (t.val = 6 ∧ big L)) := by decide +kernel
omit [FloatOps F] in
theorem cond7_iff : ∀ (L : grid9.Coords), k9_cond7 L = 1#1 := by decide +kernel
omit [FloatOps F] in
theorem cond8_iff : ∀ (L : grid9.Coords), k9_cond8 L = 1#1 ↔ big L := by decide +kernel

variable (O : CellTallies nD τ sig (HIx 22)) (W : Waits sig (HIx 22))
variable (fx : Buf (Elt F) ((xtW).view.loc (thr d L)))

abbrev NN : ℕ := 102400

/-- The 3200-element window of a flat staging buffer that a piece is written out from. -/
abbrev stg (a : Memref sig .scVector .vmem S25600 .f32) : Memref sig .scVector .vmem S3200 .f32 :=
  a.slice (Rect.unit (s := S25600) ![0] S3200.size inb_S25600_S3200_0) (fun _ => rfl)

/-- Piece `n` of the argument row held by exactly its elements, at the argument's contents; piece `n` of the result
    held by exactly its elements, at some contents. -/
abbrev xtPiece (n : ℕ) : sProp 𝕄 := (inM L n).view.loc (thr d L) ↦[(inM L n).view.set]{fullShare} fx
abbrev oPiece (n : ℕ) : sProp 𝕄 := iprop(∃ f, (outM L n).view.loc (thr d L) ↦[(outM L n).view.set]{fullShare} f)

/-- The lane-copy loop of a slot: the staging row keeps its contents, the flat staging buffer holds some contents. -/
def laneInv0 (g4 : Buf (Elt F) ((a4).view.loc (thr d L))) (_ : ℕ) (_ : PUnit) : sProp 𝕄 :=
  iprop(((a4).view.loc (thr d L) ↦{fullShare} g4) ∗ (∃ g, (a6).view.loc (thr d L) ↦{fullShare} g))
def laneInv1 (g5 : Buf (Elt F) ((a5).view.loc (thr d L))) (_ : ℕ) (_ : PUnit) : sProp 𝕄 :=
  iprop(((a5).view.loc (thr d L) ↦{fullShare} g5) ∗ (∃ g, (a7).view.loc (thr d L) ↦{fullShare} g))

/-- A fetch slot before trip work on piece `n`: the piece's fetch in flight (it will hand back the staging row at some
    contents, and the piece), or, when there is no such piece, the slot idle. -/
def inSlot (a : Memref sig .scVector .vmem S8x3200 .f32) (sm : DmaSem sig) (n : ℕ) : sProp 𝕄 :=
  if valid L n then
    iprop(∃ g, Transfers.Flight countersEmb (thr d L) (SemLoc.dma sm) (default : HIx 22) NN
      iprop((a.view.loc (thr d L) ↦{fullShare} g) ∗ xtPiece d L fx n))
  else iprop((∃ g, a.view.loc (thr d L) ↦{fullShare} g) ∗ semVal (thr d L, SemLoc.dma sm) 0)

/-- A write-out slot before trip work on piece `m`: piece `m - 2`'s write-out in flight (it will hand back that piece
    of the result at some contents, and the staging window), the rest of the staging buffer beside it; or idle. -/
def outSlot (a : Memref sig .scVector .vmem S25600 .f32) (sm : DmaSem sig) (m : ℕ) : sProp 𝕄 :=
  if 2 ≤ m ∧ valid L (m - 2) then
    iprop(∃ g, Transfers.Flight countersEmb (thr d L) (SemLoc.dma sm) (default : HIx 22) NN
        iprop(oPiece d L (m - 2) ∗ ((stg a).view.loc (thr d L) ↦[(stg a).view.set]{fullShare} g))
      ∗ (a.view.loc (thr d L) ↦[Finset.univ \ (stg a).view.set]{fullShare} g))
  else iprop((∃ g, a.view.loc (thr d L) ↦{fullShare} g) ∗ semVal (thr d L, SemLoc.dma sm) 0)

/-- Piece `n` when it exists, nothing otherwise. -/
def xP (n : ℕ) : sProp 𝕄 := if valid L n then xtPiece d L fx n else iprop(emp)
def oP (n : ℕ) : sProp 𝕄 := if valid L n then oPiece d L n else iprop(emp)

/-- What the tile holds outside the slots before trip `t`: every piece of the argument row but those being fetched
    (`2t`, `2t + 1`), every piece of the result but those being written out (`2t - 2`, `2t - 1`). -/
def xSet (t : ℕ) : Finset ℕ := (Finset.range 18).filter fun n => n ≠ 2 * t ∧ n ≠ 2 * t + 1
def oSet (t : ℕ) : Finset ℕ := (Finset.range 18).filter fun n => n + 2 ≠ 2 * t ∧ n + 2 ≠ 2 * t + 1

def inv (t : ℕ) (_ : PUnit) : sProp 𝕄 :=
  iprop(Transfers.MayWaits (thr d L) (none : HIx 22) O
    ∗ (∃ W', ⌜∀ p ∈ W', p ∈ W ∨ p.2 = none⌝ ∗ owes (thr d L) O W')
    ∗ bigSep (xSet t) (xP d L fx) ∗ bigSep (oSet t) (oP d L)
    ∗ inSlot d L fx a4 cc9_scratch4.sem (2 * t) ∗ outSlot d L a6 cc9_scratch6.sem (2 * t)
    ∗ inSlot d L fx a5 cc9_scratch5.sem (2 * t + 1) ∗ outSlot d L a7 cc9_scratch7.sem (2 * t + 1))

omit [FloatOps F] in
theorem two_out {Φ : ℕ → sProp 𝕄} {s : Finset ℕ} {a b : ℕ} (ha : a ∈ s) (hb : b ∈ s) (hab : a ≠ b) :
    bigSep s Φ = iprop(Φ a ∗ Φ b ∗ bigSep ((s.erase a).erase b) Φ) := by
  rw [SparseCore.bigSep_erase' ha, SparseCore.bigSep_erase' (Finset.mem_erase.mpr ⟨fun e => hab e.symm, hb⟩)]

omit [FloatOps F] in
theorem range18_split : (Finset.range 18) = insert 0 (insert 1 (xSet 0)) := by decide

theorem xRange_split (v0 : valid L 0) (v1 : valid L 1) :
    bigSep (Finset.range 18) (xP d L fx) = iprop(xtPiece d L fx 0 ∗ xtPiece d L fx 1 ∗ bigSep (xSet 0) (xP d L fx)) := by
  rw [range18_split, SparseCore.bigSep_insert' (by decide), SparseCore.bigSep_insert' (by decide)]
  unfold xP; rw [if_pos v0, if_pos v1]
omit [FloatOps F] in
theorem oSet_zero : oSet 0 = Finset.range 18 := by decide

theorem inSlot_pos {a : Memref sig .scVector .vmem S8x3200 .f32} {sm : DmaSem sig} {n : ℕ} (v : valid L n) :
    inSlot d L fx a sm n = iprop(∃ g, Transfers.Flight countersEmb (thr d L) (SemLoc.dma sm) (default : HIx 22) NN
      iprop((a.view.loc (thr d L) ↦{fullShare} g) ∗ xtPiece d L fx n)) := by unfold inSlot; rw [if_pos v]
theorem inSlot_neg {a : Memref sig .scVector .vmem S8x3200 .f32} {sm : DmaSem sig} {n : ℕ} (v : ¬ valid L n) :
    inSlot d L fx a sm n = iprop((∃ g, a.view.loc (thr d L) ↦{fullShare} g) ∗ semVal (thr d L, SemLoc.dma sm) 0) := by
  unfold inSlot; rw [if_neg v]
theorem outSlot_pos {a : Memref sig .scVector .vmem S25600 .f32} {sm : DmaSem sig} {m : ℕ} (h : 2 ≤ m ∧ valid L (m - 2)) :
    outSlot (F := F) d L a sm m = iprop(∃ g, Transfers.Flight countersEmb (thr d L) (SemLoc.dma sm) (default : HIx 22) NN
        iprop(oPiece (F := F) d L (m - 2) ∗ ((stg a).view.loc (thr d L) ↦[(stg a).view.set]{fullShare} g))
      ∗ (a.view.loc (thr d L) ↦[Finset.univ \ (stg a).view.set]{fullShare} g)) := by unfold outSlot; rw [if_pos h]
theorem outSlot_neg {a : Memref sig .scVector .vmem S25600 .f32} {sm : DmaSem sig} {m : ℕ} (h : ¬ (2 ≤ m ∧ valid L (m - 2))) :
    outSlot (F := F) d L a sm m = iprop((∃ g, a.view.loc (thr d L) ↦{fullShare} g) ∗ semVal (thr d L, SemLoc.dma sm) 0) := by
  unfold outSlot; rw [if_neg h]

/-- A fetch in flight, its source window spelt by any offsets equal to piece `n`'s, fills the fetch slot for `n`. -/
theorem fl_in {off : Fin 2 → ℕ} {n : ℕ} (h : off = ![9, pos L n]) (p : ∀ a, off a + S1x3200.size a ≤ S22x1600000.size a) (v : valid L n)
    (a : Memref sig .scVector .vmem S8x3200 .f32) (sm : DmaSem sig) :
    (iprop(∃ g, Transfers.Flight countersEmb (thr d L) (SemLoc.dma sm) (default : HIx 22) NN
        iprop((a.view.loc (thr d L) ↦{fullShare} g)
          ∗ (((xtW).slice (Rect.unit (s := S22x1600000) off S1x3200.size p) (fun _ => rfl)).view.loc (thr d L)
              ↦[((xtW).slice (Rect.unit (s := S22x1600000) off S1x3200.size p) (fun _ => rfl)).view.set]{fullShare} fx))) : sProp 𝕄)
      ⊢ inSlot d L fx a sm n := by
  rw [inSlot_pos d L fx v]
  iintro ⟨%g, H⟩
  have hD : (iprop((a.view.loc (thr d L) ↦{fullShare} g)
          ∗ (((xtW).slice (Rect.unit (s := S22x1600000) off S1x3200.size p) (fun _ => rfl)).view.loc (thr d L)
              ↦[((xtW).slice (Rect.unit (s := S22x1600000) off S1x3200.size p) (fun _ => rfl)).view.set]{fullShare} fx)) : sProp 𝕄)
      ⊢ iprop((a.view.loc (thr d L) ↦{fullShare} g) ∗ xtPiece d L fx n) := by
    iintro ⟨H1, H2⟩
    isplitl [H1]; · iexact H1
    iapply (Entails.of_eq (in_congr d L h p (in_inb L n) fx)); iexact H2
  iexists g
  iapply (Transfers.Flight_mono countersEmb (thr d L) hD); iexact H

/-- A write-out in flight, its destination window spelt by any offsets equal to piece `n`'s, with the rest of the
    staging buffer, fills the write-out slot for `n + 2`. -/
theorem fl_out {off : Fin 1 → ℕ} {n : ℕ} (h : off = ![pos L n]) (p : ∀ a, off a + S3200.size a ≤ S1600000.size a) (v : valid L n)
    (a : Memref sig .scVector .vmem S25600 .f32) (sm : DmaSem sig) :
    (iprop(∃ (f : Buf (Elt F) ((oW).view.loc (thr d L))) (g : Buf (Elt F) (a.view.loc (thr d L))), Transfers.Flight countersEmb (thr d L) (SemLoc.dma sm) (default : HIx 22) NN
        iprop((((oW).slice (Rect.unit (s := S1600000) off S3200.size p) (fun _ => rfl)).view.loc (thr d L)
              ↦[((oW).slice (Rect.unit (s := S1600000) off S3200.size p) (fun _ => rfl)).view.set]{fullShare} f)
          ∗ ((stg a).view.loc (thr d L) ↦[(stg a).view.set]{fullShare} g))
        ∗ (a.view.loc (thr d L) ↦[Finset.univ \ (stg a).view.set]{fullShare} g)) : sProp 𝕄)
      ⊢ outSlot (F := F) d L a sm (n + 2) := by
  rw [outSlot_pos (F := F) d L (m := n + 2) ⟨by omega, by simpa using v⟩]
  iintro ⟨%f, %g, H, R⟩
  have hD : (iprop((((oW).slice (Rect.unit (s := S1600000) off S3200.size p) (fun _ => rfl)).view.loc (thr d L)
              ↦[((oW).slice (Rect.unit (s := S1600000) off S3200.size p) (fun _ => rfl)).view.set]{fullShare} f)
          ∗ ((stg a).view.loc (thr d L) ↦[(stg a).view.set]{fullShare} g)) : sProp 𝕄)
      ⊢ iprop(oPiece (F := F) d L (n + 2 - 2) ∗ ((stg a).view.loc (thr d L) ↦[(stg a).view.set]{fullShare} g)) := by
    rw [Nat.add_sub_cancel]
    iintro ⟨H1, H2⟩
    isplitl [H1]
    · iexists f; iapply (Entails.of_eq (out_congr d L h p (out_inb L n) f)); iexact H1
    · iexact H2
  iexists g
  isplitl [H]
  · iapply (Transfers.Flight_mono countersEmb (thr d L) hD); iexact H
  · iexact R

/-! The pieces outside the slots, from one trip to the next. -/
def xCore (k : ℕ) : Finset ℕ := (Finset.range 18).filter fun n => n ≠ 2 * k ∧ n ≠ 2 * k + 1 ∧ n ≠ 2 * k + 2 ∧ n ≠ 2 * k + 3
def oCore (k : ℕ) : Finset ℕ := (Finset.range 18).filter fun n => n + 2 ≠ 2 * k ∧ n + 2 ≠ 2 * k + 1 ∧ n ≠ 2 * k ∧ n ≠ 2 * k + 1

omit [FloatOps F] in
theorem xSet_out (Φ : ℕ → sProp 𝕄) (k : ℕ) (hk : k < 8) : bigSep (xSet k) Φ = iprop(Φ (2 * k + 2) ∗ Φ (2 * k + 3) ∗ bigSep (xCore k) Φ) := by
  have e : ((xSet k).erase (2 * k + 2)).erase (2 * k + 3) = xCore k := by
    ext n; simp only [xSet, xCore, Finset.mem_erase, Finset.mem_filter, Finset.mem_range]; omega
  rw [← e]; exact two_out (by simp only [xSet, Finset.mem_filter, Finset.mem_range]; omega) (by simp only [xSet, Finset.mem_filter, Finset.mem_range]; omega) (by omega)
omit [FloatOps F] in
theorem xSet_in (Φ : ℕ → sProp 𝕄) (k : ℕ) (hk : k < 8) : bigSep (xSet (k + 1)) Φ = iprop(Φ (2 * k) ∗ Φ (2 * k + 1) ∗ bigSep (xCore k) Φ) := by
  have e : ((xSet (k + 1)).erase (2 * k)).erase (2 * k + 1) = xCore k := by
    ext n; simp only [xSet, xCore, Finset.mem_erase, Finset.mem_filter, Finset.mem_range]; omega
  rw [← e]; exact two_out (by simp only [xSet, Finset.mem_filter, Finset.mem_range]; omega) (by simp only [xSet, Finset.mem_filter, Finset.mem_range]; omega) (by omega)
omit [FloatOps F] in
theorem oSet_out (Φ : ℕ → sProp 𝕄) (k : ℕ) (hk : k < 8) : bigSep (oSet k) Φ = iprop(Φ (2 * k) ∗ Φ (2 * k + 1) ∗ bigSep (oCore k) Φ) := by
  have e : ((oSet k).erase (2 * k)).erase (2 * k + 1) = oCore k := by
    ext n; simp only [oSet, oCore, Finset.mem_erase, Finset.mem_filter, Finset.mem_range]; omega
  rw [← e]; exact two_out (by simp only [oSet, Finset.mem_filter, Finset.mem_range]; omega) (by simp only [oSet, Finset.mem_filter, Finset.mem_range]; omega) (by omega)
omit [FloatOps F] in
theorem oSet_in (Φ : ℕ → sProp 𝕄) (k : ℕ) (hk : k < 8) (hk1 : 1 ≤ k) :
    bigSep (oSet (k + 1)) Φ = iprop(Φ (2 * k - 2) ∗ Φ (2 * k - 1) ∗ bigSep (oCore k) Φ) := by
  have e : ((oSet (k + 1)).erase (2 * k - 2)).erase (2 * k - 1) = oCore k := by
    ext n; simp only [oSet, oCore, Finset.mem_erase, Finset.mem_filter, Finset.mem_range]; omega
  rw [← e]; exact two_out (by simp only [oSet, Finset.mem_filter, Finset.mem_range]; omega) (by simp only [oSet, Finset.mem_filter, Finset.mem_range]; omega) (by omega)

theorem xP_pos {n : ℕ} (v : valid L n) : xP d L fx n = xtPiece d L fx n := if_pos v
theorem oP_pos {n : ℕ} (v : valid L n) : oP (F := F) d L n = oPiece (F := F) d L n := if_pos v
theorem xP_neg {n : ℕ} (v : ¬ valid L n) : xP d L fx n = iprop(emp) := if_neg v
theorem oP_neg {n : ℕ} (v : ¬ valid L n) : oP (F := F) d L n = iprop(emp) := if_neg v

/-- Piece `n` of the result at its final contents: row 9 of the transposed argument. -/
def oQ (n : ℕ) : sProp 𝕄 :=
  if valid L n then (outM L n).view.loc (thr d L) ↦[(outM L n).view.set]{fullShare} (Cert.Spec.row 9 fx) else iprop(emp)

/-- What a tile is handed for the call: its pieces of row 9 of the transposed argument, at the argument's contents, and
    its pieces of the result at some contents. What it hands back: the same pieces of the argument, and its pieces of
    the result holding the row. -/
def goRes : sProp 𝕄 := iprop(bigSep (Finset.range 18) (xP d L fx) ∗ bigSep (Finset.range 18) (oP (F := F) d L))
def tdRes : sProp 𝕄 := iprop(bigSep (Finset.range 18) (xP d L fx) ∗ bigSep (Finset.range 18) (oQ d L fx))

end Tile

end Cert.Proof.TileK9

end
-- ==== Proof.TileK10Defs.lean ====
/-
  One vector subcore's task of copy kernel 10 (counting from 0): definitions. The task moves its pieces of row 10 of the
  transposed argument (pieces of 3200 consecutive elements, piece number 2·s + c + 32·n for the subcore (c, s) and
  n = 0, 1, … while that number is below 500) into the flat result: each piece is fetched into a staging row, copied
  16 lanes at a time into a flat staging buffer, and written out, two pieces in flight at a time. Here: the pieces as
  memrefs, the program's own spellings of them, the printed conditions as facts about the trip, the two slots' states
  between trips, and what the tile holds outside the slots.
-/
import proofs.«206869_g37898791420194_cont_8to1_b_558_20_alg».proof.Defs
import Idealize.ShloMosaic.Lib.SparseCore.Launch
import Idealize.ShloMosaic.Lib.StableHlo.Run
import Idealize.ShloMosaic.Lib.Pipeline.Kit
import Idealize.ShloMosaic.Lib.Tactic
import proofs.«206869_g37898791420194_cont_8to1_b_558_20_alg».proof.Proof.Gen.KernelIdeal
import proofs.«206869_g37898791420194_cont_8to1_b_558_20_alg».proof.Proof.Gen.KernelIdeal.Skeleton
import proofs.«206869_g37898791420194_cont_8to1_b_558_20_alg».proof.Proof.Spec

noncomputable section

namespace Cert.Proof.TileK10

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

abbrev ΛP : Labels := Pipeline.Sig Λ₀ (Fin 0) fun p => (pcfgs (F := F) p).Adm
abbrev K : SparseCore.Cfg τ sig (ΛP (F := F)) 22 := sc (F := F)
abbrev 𝒱₀ : Variants := Variants.none

abbrev UH : Type := URounds (GSem nD τ sig) ℕ
abbrev UU : Type := UH × Counters

local notation "𝕄" => MT nD τ sig (HIx 22) (Elt F) ℕ UU ℕ

local notation "xtW" => (Memref.whole Cert.KernelIdeal.main_v0_scv : Memref Cert.KernelIdeal.sig Kind.scVector Space.hbm Cert.KernelIdeal.S22x1600000 EltTy.f32)
local notation "oW" => (Memref.whole Cert.KernelIdeal.main_v11_scv : Memref Cert.KernelIdeal.sig Kind.scVector Space.hbm Cert.KernelIdeal.S1600000 EltTy.f32)
local notation "a4" => (Memref.whole Cert.KernelIdeal.cc10_scratch0 : Memref Cert.KernelIdeal.sig Kind.scVector Space.vmem Cert.KernelIdeal.S8x3200 EltTy.f32)
local notation "a5" => (Memref.whole Cert.KernelIdeal.cc10_scratch1 : Memref Cert.KernelIdeal.sig Kind.scVector Space.vmem Cert.KernelIdeal.S8x3200 EltTy.f32)
local notation "a6" => (Memref.whole Cert.KernelIdeal.cc10_scratch2 : Memref Cert.KernelIdeal.sig Kind.scVector Space.vmem Cert.KernelIdeal.S25600 EltTy.f32)
local notation "a7" => (Memref.whole Cert.KernelIdeal.cc10_scratch3 : Memref Cert.KernelIdeal.sig Kind.scVector Space.vmem Cert.KernelIdeal.S25600 EltTy.f32)

variable [FloatOps F]

section Tile

variable (d : Dev nD) (L : grid10.Coords)

abbrev cV (L : grid10.Coords) : Fin τ.nSC := (L 0).castLE hcore10
abbrev jV (L : grid10.Coords) : Fin τ.nSub := (L 1).castLE hsub10
abbrev thr (d : Dev nD) (L : grid10.Coords) : Thread nD τ := V d (cV L) (jV L)

/-- The tile's number 2·s + c, and whether it has sixteen pieces (numbers below 20) or fifteen. -/
abbrev wid (L : grid10.Coords) : ℕ := 2 * (L 1).val + (L 0).val
abbrev big (L : grid10.Coords) : Prop := wid L < 20

omit [FloatOps F] in
theorem wid_lt (L : grid10.Coords) : wid L < 32 := by
  have h0 : (L 0).val < 2 := (L 0).isLt
  have h1 : (L 1).val < 16 := (L 1).isLt
  unfold wid; omega

/-- Piece `n` of the tile exists: `n < 15`, or `n = 15` on a tile with sixteen pieces. It is the piece number
    `wid + 32·n < 500` of the row. -/
def valid (L : grid10.Coords) (n : ℕ) : Prop := n < 15 ∨ (n = 15 ∧ big L)
instance (L : grid10.Coords) (n : ℕ) : Decidable (valid L n) := by unfold valid big; infer_instance

omit [FloatOps F] in
theorem valid_iff (L : grid10.Coords) (n : ℕ) : valid L n ↔ wid L + 32 * n < 500 := by
  have := wid_lt L; unfold valid big; omega

/-- Where piece `n` starts in the row (clamped to the last piece of the row, so that the rectangle is in bounds for
    every `n`; for a valid piece the clamp is idle). -/
abbrev pos (L : grid10.Coords) (n : ℕ) : ℕ := 3200 * min (wid L + 32 * n) 499

omit [FloatOps F] in
theorem pos_valid {L : grid10.Coords} {n : ℕ} (h : valid L n) : pos L n = 6400 * (L 1).val + 3200 * (L 0).val + 102400 * n := by
  have := (valid_iff L n).mp h; unfold pos wid at *; omega

omit [FloatOps F] in
theorem in_inb (L : grid10.Coords) (n : ℕ) : ∀ a, (![10, pos L n] : Fin 2 → ℕ) a + S1x3200.size a ≤ S22x1600000.size a := by
  intro a; fin_cases a
  · show 10 + 1 ≤ 22; omega
  · show pos L n + 3200 ≤ 1600000; unfold pos; omega
omit [FloatOps F] in
theorem out_inb (L : grid10.Coords) (n : ℕ) : ∀ a, (![pos L n] : Fin 1 → ℕ) a + S3200.size a ≤ S1600000.size a := by
  intro a; fin_cases a
  show pos L n + 3200 ≤ 1600000; unfold pos; omega

/-- Piece `n` of row 10 of the transposed argument, and piece `n` of the flat result, as memrefs of the tile. -/
abbrev inM (L : grid10.Coords) (n : ℕ) : Memref sig .scVector .hbm S1x3200 .f32 :=
  (xtW).slice (Rect.unit (s := S22x1600000) ![10, pos L n] S1x3200.size (in_inb L n)) (fun _ => rfl)
abbrev outM (L : grid10.Coords) (n : ℕ) : Memref sig .scVector .hbm S3200 .f32 :=
  (oW).slice (Rect.unit (s := S1600000) ![pos L n] S3200.size (out_inb L n)) (fun _ => rfl)

/-! The program's own slices are these pieces: by the closed forms of its offset functions. -/

omit [FloatOps F] in
theorem off2 {a b : ℕ} (h : a = b) : (![10, a] : Fin 2 → ℕ) = ![10, b] := by rw [h]
omit [FloatOps F] in
theorem off1' {a b : ℕ} (h : a = b) : (![a] : Fin 1 → ℕ) = ![b] := by rw [h]

omit [FloatOps F] in
theorem off_in0 (L : grid10.Coords) (h : valid L 0) : k10_off1 L 0#32 = ![10, pos L 0] :=
  (k10_off1_eq L 0).trans (off2 (by rw [pos_valid h]; simp))
omit [FloatOps F] in
theorem off_in1 (L : grid10.Coords) (h : valid L 1) : k10_off1 L 32#32 = ![10, pos L 1] :=
  (k10_off1_eq L 1).trans (off2 (by rw [pos_valid h]; simp))
omit [FloatOps F] in
theorem off_6 (L : grid10.Coords) (t : Fin k10_t1_loop.trips) (h : valid L (2 * t.val + 2)) : k10_off6 L t = ![10, pos L (2 * t.val + 2)] :=
  (k10_off6_eq L t).trans (off2 (by rw [pos_valid h]; omega))
omit [FloatOps F] in
theorem off_11 (L : grid10.Coords) (t : Fin k10_t1_loop.trips) (h : valid L (2 * t.val + 3)) : k10_off11 L t = ![10, pos L (2 * t.val + 3)] :=
  (k10_off11_eq L t).trans (off2 (by rw [pos_valid h]; omega))
omit [FloatOps F] in
theorem off_5 (L : grid10.Coords) (t : Fin k10_t1_loop.trips) (h : valid L (2 * t.val)) : k10_off5 L t = ![pos L (2 * t.val)] :=
  (k10_off5_eq L t).trans (off1' (by rw [pos_valid h]; omega))
omit [FloatOps F] in
theorem off_10 (L : grid10.Coords) (t : Fin k10_t1_loop.trips) (h : valid L (2 * t.val + 1)) : k10_off10 L t = ![pos L (2 * t.val + 1)] :=
  (k10_off10_eq L t).trans (off1' (by rw [pos_valid h]; omega))

/-- Holding a 1 × 3200 window of the transposed argument, or a 3200 window of the result, by exactly its elements
    says the same whichever way the window's offsets are spelt. -/
theorem in_congr {off off' : Fin 2 → ℕ} (h : off = off') (p : ∀ a, off a + S1x3200.size a ≤ S22x1600000.size a)
    (p' : ∀ a, off' a + S1x3200.size a ≤ S22x1600000.size a) (f : Buf (Elt F) ((xtW).view.loc (thr d L))) :
    (((xtW).slice (Rect.unit (s := S22x1600000) off S1x3200.size p) (fun _ => rfl)).view.loc (thr d L)
        ↦[((xtW).slice (Rect.unit (s := S22x1600000) off S1x3200.size p) (fun _ => rfl)).view.set]{fullShare} f : sProp 𝕄)
      = (((xtW).slice (Rect.unit (s := S22x1600000) off' S1x3200.size p') (fun _ => rfl)).view.loc (thr d L)
        ↦[((xtW).slice (Rect.unit (s := S22x1600000) off' S1x3200.size p') (fun _ => rfl)).view.set]{fullShare} f) := by
  subst h; rfl
theorem out_congr {off off' : Fin 1 → ℕ} (h : off = off') (p : ∀ a, off a + S3200.size a ≤ S1600000.size a)
    (p' : ∀ a, off' a + S3200.size a ≤ S1600000.size a) (f : Buf (Elt F) ((oW).view.loc (thr d L))) :
    (((oW).slice (Rect.unit (s := S1600000) off S3200.size p) (fun _ => rfl)).view.loc (thr d L)
        ↦[((oW).slice (Rect.unit (s := S1600000) off S3200.size p) (fun _ => rfl)).view.set]{fullShare} f : sProp 𝕄)
      = (((oW).slice (Rect.unit (s := S1600000) off' S3200.size p') (fun _ => rfl)).view.loc (thr d L)
        ↦[((oW).slice (Rect.unit (s := S1600000) off' S3200.size p') (fun _ => rfl)).view.set]{fullShare} f) := by
  subst h; rfl

/-! The printed conditions, as facts about the trip and the tile. -/

omit [FloatOps F] in
theorem trips1 : k10_t1_loop.trips = 8 := by decide
omit [FloatOps F] in
theorem cond1_iff : ∀ (t : Fin k10_t1_loop.trips), k10_cond1 t = 1#1 ↔ 1 ≤ t.val := by decide +kernel
omit [FloatOps F] in
theorem cond2_iff : ∀ (L : grid10.Coords) (t : Fin k10_t1_loop.trips), k10_cond2 L t = 1#1 := by decide +kernel
omit [FloatOps F] in
theorem cond3_iff : ∀ (L : grid10.Coords) (t : Fin k10_t1_loop.trips), k10_cond3 L t = 1#1 ↔ t.val ≤ 6 := by decide +kernel
omit [FloatOps F] in
theorem cond4_iff : ∀ (t : Fin k10_t1_loop.trips), k10_cond4 t = 1#1 ↔ 1 ≤ t.val := by decide +kernel
omit [FloatOps F] in
theorem cond5_iff : ∀ (L : grid10.Coords) (t : Fin k10_t1_loop.trips), k10_cond5 L t = 1#1 ↔ (t.val ≤ 6 ∨ big L) := by decide +kernel
omit [FloatOps F] in
theorem cond6_iff : ∀ (L : grid10.Coords) (t : Fin k10_t1_loop.trips), k10_cond6 L t = 1#1 ↔ (t.val ≤ 5 ∨ (t.val = 6 ∧ big L)) := by decide +kernel
omit [FloatOps F] in
theorem cond7_iff : ∀ (L : grid10.Coords), k10_cond7 L = 1#1 := by decide +kernel
omit [FloatOps F] in
theorem cond8_iff : ∀ (L : grid10.Coords), k10_cond8 L = 1#1 ↔ big L := by decide +kernel

variable (O : CellTallies nD τ sig (HIx 22)) (W : Waits sig (HIx 22))
variable (fx : Buf (Elt F) ((xtW).view.loc (thr d L)))

abbrev NN : ℕ := 102400

/-- The 3200-element window of a flat staging buffer that a piece is written out from. -/
abbrev stg (a : Memref sig .scVector .vmem S25600 .f32) : Memref sig .scVector .vmem S3200 .f32 :=
  a.slice (Rect.unit (s := S25600) ![0] S3200.size inb_S25600_S3200_0) (fun _ => rfl)

/-- Piece `n` of the argument row held by exactly its elements, at the argument's contents; piece `n` of the result
    held by exactly its elements, at some contents. -/
abbrev xtPiece (n : ℕ) : sProp 𝕄 := (inM L n).view.loc (thr d L) ↦[(inM L n).view.set]{fullShare} fx
abbrev oPiece (n : ℕ) : sProp 𝕄 := iprop(∃ f, (outM L n).view.loc (thr d L) ↦[(outM L n).view.set]{fullShare} f)

/-- The lane-copy loop of a slot: the staging row keeps its contents, the flat staging buffer holds some contents. -/
def laneInv0 (g4 : Buf (Elt F) ((a4).view.loc (thr d L))) (_ : ℕ) (_ : PUnit) : sProp 𝕄 :=
  iprop(((a4).view.loc (thr d L) ↦{fullShare} g4) ∗ (∃ g, (a6).view.loc (thr d L) ↦{fullShare} g))
def laneInv1 (g5 : Buf (Elt F) ((a5).view.loc (thr d L))) (_ : ℕ) (_ : PUnit) : sProp 𝕄 :=
  iprop(((a5).view.loc (thr d L) ↦{fullShare} g5) ∗ (∃ g, (a7).view.loc (thr d L) ↦{fullShare} g))

/-- A fetch slot before trip work on piece `n`: the piece's fetch in flight (it will hand back the staging row at some
    contents, and the piece), or, when there is no such piece, the slot idle. -/
def inSlot (a : Memref sig .scVector .vmem S8x3200 .f32) (sm : DmaSem sig) (n : ℕ) : sProp 𝕄 :=
  if valid L n then
    iprop(∃ g, Transfers.Flight countersEmb (thr d L) (SemLoc.dma sm) (default : HIx 22) NN
      iprop((a.view.loc (thr d L) ↦{fullShare} g) ∗ xtPiece d L fx n))
  else iprop((∃ g, a.view.loc (thr d L) ↦{fullShare} g) ∗ semVal (thr d L, SemLoc.dma sm) 0)

/-- A write-out slot before trip work on piece `m`: piece `m - 2`'s write-out in flight (it will hand back that piece
    of the result at some contents, and the staging window), the rest of the staging buffer beside it; or idle. -/
def outSlot (a : Memref sig .scVector .vmem S25600 .f32) (sm : DmaSem sig) (m : ℕ) : sProp 𝕄 :=
  if 2 ≤ m ∧ valid L (m - 2) then
    iprop(∃ g, Transfers.Flight countersEmb (thr d L) (SemLoc.dma sm) (default : HIx 22) NN
        iprop(oPiece d L (m - 2) ∗ ((stg a).view.loc (thr d L) ↦[(stg a).view.set]{fullShare} g))
      ∗ (a.view.loc (thr d L) ↦[Finset.univ \ (stg a).view.set]{fullShare} g))
  else iprop((∃ g, a.view.loc (thr d L) ↦{fullShare} g) ∗ semVal (thr d L, SemLoc.dma sm) 0)

/-- Piece `n` when it exists, nothing otherwise. -/
def xP (n : ℕ) : sProp 𝕄 := if valid L n then xtPiece d L fx n else iprop(emp)
def oP (n : ℕ) : sProp 𝕄 := if valid L n then oPiece d L n else iprop(emp)

/-- What the tile holds outside the slots before trip `t`: every piece of the argument row but those being fetched
    (`2t`, `2t + 1`), every piece of the result but those being written out (`2t - 2`, `2t - 1`). -/
def xSet (t : ℕ) : Finset ℕ := (Finset.range 18).filter fun n => n ≠ 2 * t ∧ n ≠ 2 * t + 1
def oSet (t : ℕ) : Finset ℕ := (Finset.range 18).filter fun n => n + 2 ≠ 2 * t ∧ n + 2 ≠ 2 * t + 1

def inv (t : ℕ) (_ : PUnit) : sProp 𝕄 :=
  iprop(Transfers.MayWaits (thr d L) (none : HIx 22) O
    ∗ (∃ W', ⌜∀ p ∈ W', p ∈ W ∨ p.2 = none⌝ ∗ owes (thr d L) O W')
    ∗ bigSep (xSet t) (xP d L fx) ∗ bigSep (oSet t) (oP d L)
    ∗ inSlot d L fx a4 cc10_scratch4.sem (2 * t) ∗ outSlot d L a6 cc10_scratch6.sem (2 * t)
    ∗ inSlot d L fx a5 cc10_scratch5.sem (2 * t + 1) ∗ outSlot d L a7 cc10_scratch7.sem (2 * t + 1))

omit [FloatOps F] in
theorem two_out {Φ : ℕ → sProp 𝕄} {s : Finset ℕ} {a b : ℕ} (ha : a ∈ s) (hb : b ∈ s) (hab : a ≠ b) :
    bigSep s Φ = iprop(Φ a ∗ Φ b ∗ bigSep ((s.erase a).erase b) Φ) := by
  rw [SparseCore.bigSep_erase' ha, SparseCore.bigSep_erase' (Finset.mem_erase.mpr ⟨fun e => hab e.symm, hb⟩)]

omit [FloatOps F] in
theorem range18_split : (Finset.range 18) = insert 0 (insert 1 (xSet 0)) := by decide

theorem xRange_split (v0 : valid L 0) (v1 : valid L 1) :
    bigSep (Finset.range 18) (xP d L fx) = iprop(xtPiece d L fx 0 ∗ xtPiece d L fx 1 ∗ bigSep (xSet 0) (xP d L fx)) := by
  rw [range18_split, SparseCore.bigSep_insert' (by decide), SparseCore.bigSep_insert' (by decide)]
  unfold xP; rw [if_pos v0, if_pos v1]
omit [FloatOps F] in
theorem oSet_zero : oSet 0 = Finset.range 18 := by decide

theorem inSlot_pos {a : Memref sig .scVector .vmem S8x3200 .f32} {sm : DmaSem sig} {n : ℕ} (v : valid L n) :
    inSlot d L fx a sm n = iprop(∃ g, Transfers.Flight countersEmb (thr d L) (SemLoc.dma sm) (default : HIx 22) NN
      iprop((a.view.loc (thr d L) ↦{fullShare} g) ∗ xtPiece d L fx n)) := by unfold inSlot; rw [if_pos v]
theorem inSlot_neg {a : Memref sig .scVector .vmem S8x3200 .f32} {sm : DmaSem sig} {n : ℕ} (v : ¬ valid L n) :
    inSlot d L fx a sm n = iprop((∃ g, a.view.loc (thr d L) ↦{fullShare} g) ∗ semVal (thr d L, SemLoc.dma sm) 0) := by
  unfold inSlot; rw [if_neg v]
theorem outSlot_pos {a : Memref sig .scVector .vmem S25600 .f32} {sm : DmaSem sig} {m : ℕ} (h : 2 ≤ m ∧ valid L (m - 2)) :
    outSlot (F := F) d L a sm m = iprop(∃ g, Transfers.Flight countersEmb (thr d L) (SemLoc.dma sm) (default : HIx 22) NN
        iprop(oPiece (F := F) d L (m - 2) ∗ ((stg a).view.loc (thr d L) ↦[(stg a).view.set]{fullShare} g))
      ∗ (a.view.loc (thr d L) ↦[Finset.univ \ (stg a).view.set]{fullShare} g)) := by unfold outSlot; rw [if_pos h]
theorem outSlot_neg {a : Memref sig .scVector .vmem S25600 .f32} {sm : DmaSem sig} {m : ℕ} (h : ¬ (2 ≤ m ∧ valid L (m - 2))) :
    outSlot (F := F) d L a sm m = iprop((∃ g, a.view.loc (thr d L) ↦{fullShare} g) ∗ semVal (thr d L, SemLoc.dma sm) 0) := by
  unfold outSlot; rw [if_neg h]

/-- A fetch in flight, its source window spelt by any offsets equal to piece `n`'s, fills the fetch slot for `n`. -/
theorem fl_in {off : Fin 2 → ℕ} {n : ℕ} (h : off = ![10, pos L n]) (p : ∀ a, off a + S1x3200.size a ≤ S22x1600000.size a) (v : valid L n)
    (a : Memref sig .scVector .vmem S8x3200 .f32) (sm : DmaSem sig) :
    (iprop(∃ g, Transfers.Flight countersEmb (thr d L) (SemLoc.dma sm) (default : HIx 22) NN
        iprop((a.view.loc (thr d L) ↦{fullShare} g)
          ∗ (((xtW).slice (Rect.unit (s := S22x1600000) off S1x3200.size p) (fun _ => rfl)).view.loc (thr d L)
              ↦[((xtW).slice (Rect.unit (s := S22x1600000) off S1x3200.size p) (fun _ => rfl)).view.set]{fullShare} fx))) : sProp 𝕄)
      ⊢ inSlot d L fx a sm n := by
  rw [inSlot_pos d L fx v]
  iintro ⟨%g, H⟩
  have hD : (iprop((a.view.loc (thr d L) ↦{fullShare} g)
          ∗ (((xtW).slice (Rect.unit (s := S22x1600000) off S1x3200.size p) (fun _ => rfl)).view.loc (thr d L)
              ↦[((xtW).slice (Rect.unit (s := S22x1600000) off S1x3200.size p) (fun _ => rfl)).view.set]{fullShare} fx)) : sProp 𝕄)
      ⊢ iprop((a.view.loc (thr d L) ↦{fullShare} g) ∗ xtPiece d L fx n) := by
    iintro ⟨H1, H2⟩
    isplitl [H1]; · iexact H1
    iapply (Entails.of_eq (in_congr d L h p (in_inb L n) fx)); iexact H2
  iexists g
  iapply (Transfers.Flight_mono countersEmb (thr d L) hD); iexact H

/-- A write-out in flight, its destination window spelt by any offsets equal to piece `n`'s, with the rest of the
    staging buffer, fills the write-out slot for `n + 2`. -/
theorem fl_out {off : Fin 1 → ℕ} {n : ℕ} (h : off = ![pos L n]) (p : ∀ a, off a + S3200.size a ≤ S1600000.size a) (v : valid L n)
    (a : Memref sig .scVector .vmem S25600 .f32) (sm : DmaSem sig) :
    (iprop(∃ (f : Buf (Elt F) ((oW).view.loc (thr d L))) (g : Buf (Elt F) (a.view.loc (thr d L))), Transfers.Flight countersEmb (thr d L) (SemLoc.dma sm) (default : HIx 22) NN
        iprop((((oW).slice (Rect.unit (s := S1600000) off S3200.size p) (fun _ => rfl)).view.loc (thr d L)
              ↦[((oW).slice (Rect.unit (s := S1600000) off S3200.size p) (fun _ => rfl)).view.set]{fullShare} f)
          ∗ ((stg a).view.loc (thr d L) ↦[(stg a).view.set]{fullShare} g))
        ∗ (a.view.loc (thr d L) ↦[Finset.univ \ (stg a).view.set]{fullShare} g)) : sProp 𝕄)
      ⊢ outSlot (F := F) d L a sm (n + 2) := by
  rw [outSlot_pos (F := F) d L (m := n + 2) ⟨by omega, by simpa using v⟩]
  iintro ⟨%f, %g, H, R⟩
  have hD : (iprop((((oW).slice (Rect.unit (s := S1600000) off S3200.size p) (fun _ => rfl)).view.loc (thr d L)
              ↦[((oW).slice (Rect.unit (s := S1600000) off S3200.size p) (fun _ => rfl)).view.set]{fullShare} f)
          ∗ ((stg a).view.loc (thr d L) ↦[(stg a).view.set]{fullShare} g)) : sProp 𝕄)
      ⊢ iprop(oPiece (F := F) d L (n + 2 - 2) ∗ ((stg a).view.loc (thr d L) ↦[(stg a).view.set]{fullShare} g)) := by
    rw [Nat.add_sub_cancel]
    iintro ⟨H1, H2⟩
    isplitl [H1]
    · iexists f; iapply (Entails.of_eq (out_congr d L h p (out_inb L n) f)); iexact H1
    · iexact H2
  iexists g
  isplitl [H]
  · iapply (Transfers.Flight_mono countersEmb (thr d L) hD); iexact H
  · iexact R

/-! The pieces outside the slots, from one trip to the next. -/
def xCore (k : ℕ) : Finset ℕ := (Finset.range 18).filter fun n => n ≠ 2 * k ∧ n ≠ 2 * k + 1 ∧ n ≠ 2 * k + 2 ∧ n ≠ 2 * k + 3
def oCore (k : ℕ) : Finset ℕ := (Finset.range 18).filter fun n => n + 2 ≠ 2 * k ∧ n + 2 ≠ 2 * k + 1 ∧ n ≠ 2 * k ∧ n ≠ 2 * k + 1

omit [FloatOps F] in
theorem xSet_out (Φ : ℕ → sProp 𝕄) (k : ℕ) (hk : k < 8) : bigSep (xSet k) Φ = iprop(Φ (2 * k + 2) ∗ Φ (2 * k + 3) ∗ bigSep (xCore k) Φ) := by
  have e : ((xSet k).erase (2 * k + 2)).erase (2 * k + 3) = xCore k := by
    ext n; simp only [xSet, xCore, Finset.mem_erase, Finset.mem_filter, Finset.mem_range]; omega
  rw [← e]; exact two_out (by simp only [xSet, Finset.mem_filter, Finset.mem_range]; omega) (by simp only [xSet, Finset.mem_filter, Finset.mem_range]; omega) (by omega)
omit [FloatOps F] in
theorem xSet_in (Φ : ℕ → sProp 𝕄) (k : ℕ) (hk : k < 8) : bigSep (xSet (k + 1)) Φ = iprop(Φ (2 * k) ∗ Φ (2 * k + 1) ∗ bigSep (xCore k) Φ) := by
  have e : ((xSet (k + 1)).erase (2 * k)).erase (2 * k + 1) = xCore k := by
    ext n; simp only [xSet, xCore, Finset.mem_erase, Finset.mem_filter, Finset.mem_range]; omega
  rw [← e]; exact two_out (by simp only [xSet, Finset.mem_filter, Finset.mem_range]; omega) (by simp only [xSet, Finset.mem_filter, Finset.mem_range]; omega) (by omega)
omit [FloatOps F] in
theorem oSet_out (Φ : ℕ → sProp 𝕄) (k : ℕ) (hk : k < 8) : bigSep (oSet k) Φ = iprop(Φ (2 * k) ∗ Φ (2 * k + 1) ∗ bigSep (oCore k) Φ) := by
  have e : ((oSet k).erase (2 * k)).erase (2 * k + 1) = oCore k := by
    ext n; simp only [oSet, oCore, Finset.mem_erase, Finset.mem_filter, Finset.mem_range]; omega
  rw [← e]; exact two_out (by simp only [oSet, Finset.mem_filter, Finset.mem_range]; omega) (by simp only [oSet, Finset.mem_filter, Finset.mem_range]; omega) (by omega)
omit [FloatOps F] in
theorem oSet_in (Φ : ℕ → sProp 𝕄) (k : ℕ) (hk : k < 8) (hk1 : 1 ≤ k) :
    bigSep (oSet (k + 1)) Φ = iprop(Φ (2 * k - 2) ∗ Φ (2 * k - 1) ∗ bigSep (oCore k) Φ) := by
  have e : ((oSet (k + 1)).erase (2 * k - 2)).erase (2 * k - 1) = oCore k := by
    ext n; simp only [oSet, oCore, Finset.mem_erase, Finset.mem_filter, Finset.mem_range]; omega
  rw [← e]; exact two_out (by simp only [oSet, Finset.mem_filter, Finset.mem_range]; omega) (by simp only [oSet, Finset.mem_filter, Finset.mem_range]; omega) (by omega)

theorem xP_pos {n : ℕ} (v : valid L n) : xP d L fx n = xtPiece d L fx n := if_pos v
theorem oP_pos {n : ℕ} (v : valid L n) : oP (F := F) d L n = oPiece (F := F) d L n := if_pos v
theorem xP_neg {n : ℕ} (v : ¬ valid L n) : xP d L fx n = iprop(emp) := if_neg v
theorem oP_neg {n : ℕ} (v : ¬ valid L n) : oP (F := F) d L n = iprop(emp) := if_neg v

/-- Piece `n` of the result at its final contents: row 10 of the transposed argument. -/
def oQ (n : ℕ) : sProp 𝕄 :=
  if valid L n then (outM L n).view.loc (thr d L) ↦[(outM L n).view.set]{fullShare} (Cert.Spec.row 10 fx) else iprop(emp)

/-- What a tile is handed for the call: its pieces of row 10 of the transposed argument, at the argument's contents, and
    its pieces of the result at some contents. What it hands back: the same pieces of the argument, and its pieces of
    the result holding the row. -/
def goRes : sProp 𝕄 := iprop(bigSep (Finset.range 18) (xP d L fx) ∗ bigSep (Finset.range 18) (oP (F := F) d L))
def tdRes : sProp 𝕄 := iprop(bigSep (Finset.range 18) (xP d L fx) ∗ bigSep (Finset.range 18) (oQ d L fx))

end Tile

end Cert.Proof.TileK10

end
-- ==== Proof.TileK11Defs.lean ====
/-
  One vector subcore's task of copy kernel 11 (counting from 0): definitions. The task moves its pieces of row 11 of the
  transposed argument (pieces of 3200 consecutive elements, piece number 2·s + c + 32·n for the subcore (c, s) and
  n = 0, 1, … while that number is below 500) into the flat result: each piece is fetched into a staging row, copied
  16 lanes at a time into a flat staging buffer, and written out, two pieces in flight at a time. Here: the pieces as
  memrefs, the program's own spellings of them, the printed conditions as facts about the trip, the two slots' states
  between trips, and what the tile holds outside the slots.
-/
import proofs.«206869_g37898791420194_cont_8to1_b_558_20_alg».proof.Defs
import Idealize.ShloMosaic.Lib.SparseCore.Launch
import Idealize.ShloMosaic.Lib.StableHlo.Run
import Idealize.ShloMosaic.Lib.Pipeline.Kit
import Idealize.ShloMosaic.Lib.Tactic
import proofs.«206869_g37898791420194_cont_8to1_b_558_20_alg».proof.Proof.Gen.KernelIdeal
import proofs.«206869_g37898791420194_cont_8to1_b_558_20_alg».proof.Proof.Gen.KernelIdeal.Skeleton
import proofs.«206869_g37898791420194_cont_8to1_b_558_20_alg».proof.Proof.Spec

noncomputable section

namespace Cert.Proof.TileK11

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

abbrev ΛP : Labels := Pipeline.Sig Λ₀ (Fin 0) fun p => (pcfgs (F := F) p).Adm
abbrev K : SparseCore.Cfg τ sig (ΛP (F := F)) 22 := sc (F := F)
abbrev 𝒱₀ : Variants := Variants.none

abbrev UH : Type := URounds (GSem nD τ sig) ℕ
abbrev UU : Type := UH × Counters

local notation "𝕄" => MT nD τ sig (HIx 22) (Elt F) ℕ UU ℕ

local notation "xtW" => (Memref.whole Cert.KernelIdeal.main_v0_scv : Memref Cert.KernelIdeal.sig Kind.scVector Space.hbm Cert.KernelIdeal.S22x1600000 EltTy.f32)
local notation "oW" => (Memref.whole Cert.KernelIdeal.main_v12_scv : Memref Cert.KernelIdeal.sig Kind.scVector Space.hbm Cert.KernelIdeal.S1600000 EltTy.f32)
local notation "a4" => (Memref.whole Cert.KernelIdeal.cc11_scratch0 : Memref Cert.KernelIdeal.sig Kind.scVector Space.vmem Cert.KernelIdeal.S8x3200 EltTy.f32)
local notation "a5" => (Memref.whole Cert.KernelIdeal.cc11_scratch1 : Memref Cert.KernelIdeal.sig Kind.scVector Space.vmem Cert.KernelIdeal.S8x3200 EltTy.f32)
local notation "a6" => (Memref.whole Cert.KernelIdeal.cc11_scratch2 : Memref Cert.KernelIdeal.sig Kind.scVector Space.vmem Cert.KernelIdeal.S25600 EltTy.f32)
local notation "a7" => (Memref.whole Cert.KernelIdeal.cc11_scratch3 : Memref Cert.KernelIdeal.sig Kind.scVector Space.vmem Cert.KernelIdeal.S25600 EltTy.f32)

variable [FloatOps F]

section Tile

variable (d : Dev nD) (L : grid11.Coords)

abbrev cV (L : grid11.Coords) : Fin τ.nSC := (L 0).castLE hcore11
abbrev jV (L : grid11.Coords) : Fin τ.nSub := (L 1).castLE hsub11
abbrev thr (d : Dev nD) (L : grid11.Coords) : Thread nD τ := V d (cV L) (jV L)

/-- The tile's number 2·s + c, and whether it has sixteen pieces (numbers below 20) or fifteen. -/
abbrev wid (L : grid11.Coords) : ℕ := 2 * (L 1).val + (L 0).val
abbrev big (L : grid11.Coords) : Prop := wid L < 20

omit [FloatOps F] in
theorem wid_lt (L : grid11.Coords) : wid L < 32 := by
  have h0 : (L 0).val < 2 := (L 0).isLt
  have h1 : (L 1).val < 16 := (L 1).isLt
  unfold wid; omega

/-- Piece `n` of the tile exists: `n < 15`, or `n = 15` on a tile with sixteen pieces. It is the piece number
    `wid + 32·n < 500` of the row. -/
def valid (L : grid11.Coords) (n : ℕ) : Prop := n < 15 ∨ (n = 15 ∧ big L)
instance (L : grid11.Coords) (n : ℕ) : Decidable (valid L n) := by unfold valid big; infer_instance

omit [FloatOps F] in
theorem valid_iff (L : grid11.Coords) (n : ℕ) : valid L n ↔ wid L + 32 * n < 500 := by
  have := wid_lt L; unfold valid big; omega

/-- Where piece `n` starts in the row (clamped to the last piece of the row, so that the rectangle is in bounds for
    every `n`; for a valid piece the clamp is idle). -/
abbrev pos (L : grid11.Coords) (n : ℕ) : ℕ := 3200 * min (wid L + 32 * n) 499

omit [FloatOps F] in
theorem pos_valid {L : grid11.Coords} {n : ℕ} (h : valid L n) : pos L n = 6400 * (L 1).val + 3200 * (L 0).val + 102400 * n := by
  have := (valid_iff L n).mp h; unfold pos wid at *; omega

omit [FloatOps F] in
theorem in_inb (L : grid11.Coords) (n : ℕ) : ∀ a, (![11, pos L n] : Fin 2 → ℕ) a + S1x3200.size a ≤ S22x1600000.size a := by
  intro a; fin_cases a
  · show 11 + 1 ≤ 22; omega
  · show pos L n + 3200 ≤ 1600000; unfold pos; omega
omit [FloatOps F] in
theorem out_inb (L : grid11.Coords) (n : ℕ) : ∀ a, (![pos L n] : Fin 1 → ℕ) a + S3200.size a ≤ S1600000.size a := by
  intro a; fin_cases a
  show pos L n + 3200 ≤ 1600000; unfold pos; omega

/-- Piece `n` of row 11 of the transposed argument, and piece `n` of the flat result, as memrefs of the tile. -/
abbrev inM (L : grid11.Coords) (n : ℕ) : Memref sig .scVector .hbm S1x3200 .f32 :=
  (xtW).slice (Rect.unit (s := S22x1600000) ![11, pos L n] S1x3200.size (in_inb L n)) (fun _ => rfl)
abbrev outM (L : grid11.Coords) (n : ℕ) : Memref sig .scVector .hbm S3200 .f32 :=
  (oW).slice (Rect.unit (s := S1600000) ![pos L n] S3200.size (out_inb L n)) (fun _ => rfl)

/-! The program's own slices are these pieces: by the closed forms of its offset functions. -/

omit [FloatOps F] in
theorem off2 {a b : ℕ} (h : a = b) : (![11, a] : Fin 2 → ℕ) = ![11, b] := by rw [h]
omit [FloatOps F] in
theorem off1' {a b : ℕ} (h : a = b) : (![a] : Fin 1 → ℕ) = ![b] := by rw [h]

omit [FloatOps F] in
theorem off_in0 (L : grid11.Coords) (h : valid L 0) : k11_off1 L 0#32 = ![11, pos L 0] :=
  (k11_off1_eq L 0).trans (off2 (by rw [pos_valid h]; simp))
omit [FloatOps F] in
theorem off_in1 (L : grid11.Coords) (h : valid L 1) : k11_off1 L 32#32 = ![11, pos L 1] :=
  (k11_off1_eq L 1).trans (off2 (by rw [pos_valid h]; simp))
omit [FloatOps F] in
theorem off_6 (L : grid11.Coords) (t : Fin k11_t1_loop.trips) (h : valid L (2 * t.val + 2)) : k11_off6 L t = ![11, pos L (2 * t.val + 2)] :=
  (k11_off6_eq L t).trans (off2 (by rw [pos_valid h]; omega))
omit [FloatOps F] in
theorem off_11 (L : grid11.Coords) (t : Fin k11_t1_loop.trips) (h : valid L (2 * t.val + 3)) : k11_off11 L t = ![11, pos L (2 * t.val + 3)] :=
  (k11_off11_eq L t).trans (off2 (by rw [pos_valid h]; omega))
omit [FloatOps F] in
theorem off_5 (L : grid11.Coords) (t : Fin k11_t1_loop.trips) (h : valid L (2 * t.val)) : k11_off5 L t = ![pos L (2 * t.val)] :=
  (k11_off5_eq L t).trans (off1' (by rw [pos_valid h]; omega))
omit [FloatOps F] in
theorem off_10 (L : grid11.Coords) (t : Fin k11_t1_loop.trips) (h : valid L (2 * t.val + 1)) : k11_off10 L t = ![pos L (2 * t.val + 1)] :=
  (k11_off10_eq L t).trans (off1' (by rw [pos_valid h]; omega))

/-- Holding a 1 × 3200 window of the transposed argument, or a 3200 window of the result, by exactly its elements
    says the same whichever way the window's offsets are spelt. -/
theorem in_congr {off off' : Fin 2 → ℕ} (h : off = off') (p : ∀ a, off a + S1x3200.size a ≤ S22x1600000.size a)
    (p' : ∀ a, off' a + S1x3200.size a ≤ S22x1600000.size a) (f : Buf (Elt F) ((xtW).view.loc (thr d L))) :
    (((xtW).slice (Rect.unit (s := S22x1600000) off S1x3200.size p) (fun _ => rfl)).view.loc (thr d L)
        ↦[((xtW).slice (Rect.unit (s := S22x1600000) off S1x3200.size p) (fun _ => rfl)).view.set]{fullShare} f : sProp 𝕄)
      = (((xtW).slice (Rect.unit (s := S22x1600000) off' S1x3200.size p') (fun _ => rfl)).view.loc (thr d L)
        ↦[((xtW).slice (Rect.unit (s := S22x1600000) off' S1x3200.size p') (fun _ => rfl)).view.set]{fullShare} f) := by
  subst h; rfl
theorem out_congr {off off' : Fin 1 → ℕ} (h : off = off') (p : ∀ a, off a + S3200.size a ≤ S1600000.size a)
    (p' : ∀ a, off' a + S3200.size a ≤ S1600000.size a) (f : Buf (Elt F) ((oW).view.loc (thr d L))) :
    (((oW).slice (Rect.unit (s := S1600000) off S3200.size p) (fun _ => rfl)).view.loc (thr d L)
        ↦[((oW).slice (Rect.unit (s := S1600000) off S3200.size p) (fun _ => rfl)).view.set]{fullShare} f : sProp 𝕄)
      = (((oW).slice (Rect.unit (s := S1600000) off' S3200.size p') (fun _ => rfl)).view.loc (thr d L)
        ↦[((oW).slice (Rect.unit (s := S1600000) off' S3200.size p') (fun _ => rfl)).view.set]{fullShare} f) := by
  subst h; rfl

/-! The printed conditions, as facts about the trip and the tile. -/

omit [FloatOps F] in
theorem trips1 : k11_t1_loop.trips = 8 := by decide
omit [FloatOps F] in
theorem cond1_iff : ∀ (t : Fin k11_t1_loop.trips), k11_cond1 t = 1#1 ↔ 1 ≤ t.val := by decide +kernel
omit [FloatOps F] in
theorem cond2_iff : ∀ (L : grid11.Coords) (t : Fin k11_t1_loop.trips), k11_cond2 L t = 1#1 := by decide +kernel
omit [FloatOps F] in
theorem cond3_iff : ∀ (L : grid11.Coords) (t : Fin k11_t1_loop.trips), k11_cond3 L t = 1#1 ↔ t.val ≤ 6 := by decide +kernel
omit [FloatOps F] in
theorem cond4_iff : ∀ (t : Fin k11_t1_loop.trips), k11_cond4 t = 1#1 ↔ 1 ≤ t.val := by decide +kernel
omit [FloatOps F] in
theorem cond5_iff : ∀ (L : grid11.Coords) (t : Fin k11_t1_loop.trips), k11_cond5 L t = 1#1 ↔ (t.val ≤ 6 ∨ big L) := by decide +kernel
omit [FloatOps F] in
theorem cond6_iff : ∀ (L : grid11.Coords) (t : Fin k11_t1_loop.trips), k11_cond6 L t = 1#1 ↔ (t.val ≤ 5 ∨ (t.val = 6 ∧ big L)) := by decide +kernel
omit [FloatOps F] in
theorem cond7_iff : ∀ (L : grid11.Coords), k11_cond7 L = 1#1 := by decide +kernel
omit [FloatOps F] in
theorem cond8_iff : ∀ (L : grid11.Coords), k11_cond8 L = 1#1 ↔ big L := by decide +kernel

variable (O : CellTallies nD τ sig (HIx 22)) (W : Waits sig (HIx 22))
variable (fx : Buf (Elt F) ((xtW).view.loc (thr d L)))

abbrev NN : ℕ := 102400

/-- The 3200-element window of a flat staging buffer that a piece is written out from. -/
abbrev stg (a : Memref sig .scVector .vmem S25600 .f32) : Memref sig .scVector .vmem S3200 .f32 :=
  a.slice (Rect.unit (s := S25600) ![0] S3200.size inb_S25600_S3200_0) (fun _ => rfl)

/-- Piece `n` of the argument row held by exactly its elements, at the argument's contents; piece `n` of the result
    held by exactly its elements, at some contents. -/
abbrev xtPiece (n : ℕ) : sProp 𝕄 := (inM L n).view.loc (thr d L) ↦[(inM L n).view.set]{fullShare} fx
abbrev oPiece (n : ℕ) : sProp 𝕄 := iprop(∃ f, (outM L n).view.loc (thr d L) ↦[(outM L n).view.set]{fullShare} f)

/-- The lane-copy loop of a slot: the staging row keeps its contents, the flat staging buffer holds some contents. -/
def laneInv0 (g4 : Buf (Elt F) ((a4).view.loc (thr d L))) (_ : ℕ) (_ : PUnit) : sProp 𝕄 :=
  iprop(((a4).view.loc (thr d L) ↦{fullShare} g4) ∗ (∃ g, (a6).view.loc (thr d L) ↦{fullShare} g))
def laneInv1 (g5 : Buf (Elt F) ((a5).view.loc (thr d L))) (_ : ℕ) (_ : PUnit) : sProp 𝕄 :=
  iprop(((a5).view.loc (thr d L) ↦{fullShare} g5) ∗ (∃ g, (a7).view.loc (thr d L) ↦{fullShare} g))

/-- A fetch slot before trip work on piece `n`: the piece's fetch in flight (it will hand back the staging row at some
    contents, and the piece), or, when there is no such piece, the slot idle. -/
def inSlot (a : Memref sig .scVector .vmem S8x3200 .f32) (sm : DmaSem sig) (n : ℕ) : sProp 𝕄 :=
  if valid L n then
    iprop(∃ g, Transfers.Flight countersEmb (thr d L) (SemLoc.dma sm) (default : HIx 22) NN
      iprop((a.view.loc (thr d L) ↦{fullShare} g) ∗ xtPiece d L fx n))
  else iprop((∃ g, a.view.loc (thr d L) ↦{fullShare} g) ∗ semVal (thr d L, SemLoc.dma sm) 0)

/-- A write-out slot before trip work on piece `m`: piece `m - 2`'s write-out in flight (it will hand back that piece
    of the result at some contents, and the staging window), the rest of the staging buffer beside it; or idle. -/
def outSlot (a : Memref sig .scVector .vmem S25600 .f32) (sm : DmaSem sig) (m : ℕ) : sProp 𝕄 :=
  if 2 ≤ m ∧ valid L (m - 2) then
    iprop(∃ g, Transfers.Flight countersEmb (thr d L) (SemLoc.dma sm) (default : HIx 22) NN
        iprop(oPiece d L (m - 2) ∗ ((stg a).view.loc (thr d L) ↦[(stg a).view.set]{fullShare} g))
      ∗ (a.view.loc (thr d L) ↦[Finset.univ \ (stg a).view.set]{fullShare} g))
  else iprop((∃ g, a.view.loc (thr d L) ↦{fullShare} g) ∗ semVal (thr d L, SemLoc.dma sm) 0)

/-- Piece `n` when it exists, nothing otherwise. -/
def xP (n : ℕ) : sProp 𝕄 := if valid L n then xtPiece d L fx n else iprop(emp)
def oP (n : ℕ) : sProp 𝕄 := if valid L n then oPiece d L n else iprop(emp)

/-- What the tile holds outside the slots before trip `t`: every piece of the argument row but those being fetched
    (`2t`, `2t + 1`), every piece of the result but those being written out (`2t - 2`, `2t - 1`). -/
def xSet (t : ℕ) : Finset ℕ := (Finset.range 18).filter fun n => n ≠ 2 * t ∧ n ≠ 2 * t + 1
def oSet (t : ℕ) : Finset ℕ := (Finset.range 18).filter fun n => n + 2 ≠ 2 * t ∧ n + 2 ≠ 2 * t + 1

def inv (t : ℕ) (_ : PUnit) : sProp 𝕄 :=
  iprop(Transfers.MayWaits (thr d L) (none : HIx 22) O
    ∗ (∃ W', ⌜∀ p ∈ W', p ∈ W ∨ p.2 = none⌝ ∗ owes (thr d L) O W')
    ∗ bigSep (xSet t) (xP d L fx) ∗ bigSep (oSet t) (oP d L)
    ∗ inSlot d L fx a4 cc11_scratch4.sem (2 * t) ∗ outSlot d L a6 cc11_scratch6.sem (2 * t)
    ∗ inSlot d L fx a5 cc11_scratch5.sem (2 * t + 1) ∗ outSlot d L a7 cc11_scratch7.sem (2 * t + 1))

omit [FloatOps F] in
theorem two_out {Φ : ℕ → sProp 𝕄} {s : Finset ℕ} {a b : ℕ} (ha : a ∈ s) (hb : b ∈ s) (hab : a ≠ b) :
    bigSep s Φ = iprop(Φ a ∗ Φ b ∗ bigSep ((s.erase a).erase b) Φ) := by
  rw [SparseCore.bigSep_erase' ha, SparseCore.bigSep_erase' (Finset.mem_erase.mpr ⟨fun e => hab e.symm, hb⟩)]

omit [FloatOps F] in
theorem range18_split : (Finset.range 18) = insert 0 (insert 1 (xSet 0)) := by decide

theorem xRange_split (v0 : valid L 0) (v1 : valid L 1) :
    bigSep (Finset.range 18) (xP d L fx) = iprop(xtPiece d L fx 0 ∗ xtPiece d L fx 1 ∗ bigSep (xSet 0) (xP d L fx)) := by
  rw [range18_split, SparseCore.bigSep_insert' (by decide), SparseCore.bigSep_insert' (by decide)]
  unfold xP; rw [if_pos v0, if_pos v1]
omit [FloatOps F] in
theorem oSet_zero : oSet 0 = Finset.range 18 := by decide

theorem inSlot_pos {a : Memref sig .scVector .vmem S8x3200 .f32} {sm : DmaSem sig} {n : ℕ} (v : valid L n) :
    inSlot d L fx a sm n = iprop(∃ g, Transfers.Flight countersEmb (thr d L) (SemLoc.dma sm) (default : HIx 22) NN
      iprop((a.view.loc (thr d L) ↦{fullShare} g) ∗ xtPiece d L fx n)) := by unfold inSlot; rw [if_pos v]
theorem inSlot_neg {a : Memref sig .scVector .vmem S8x3200 .f32} {sm : DmaSem sig} {n : ℕ} (v : ¬ valid L n) :
    inSlot d L fx a sm n = iprop((∃ g, a.view.loc (thr d L) ↦{fullShare} g) ∗ semVal (thr d L, SemLoc.dma sm) 0) := by
  unfold inSlot; rw [if_neg v]
theorem outSlot_pos {a : Memref sig .scVector .vmem S25600 .f32} {sm : DmaSem sig} {m : ℕ} (h : 2 ≤ m ∧ valid L (m - 2)) :
    outSlot (F := F) d L a sm m = iprop(∃ g, Transfers.Flight countersEmb (thr d L) (SemLoc.dma sm) (default : HIx 22) NN
        iprop(oPiece (F := F) d L (m - 2) ∗ ((stg a).view.loc (thr d L) ↦[(stg a).view.set]{fullShare} g))
      ∗ (a.view.loc (thr d L) ↦[Finset.univ \ (stg a).view.set]{fullShare} g)) := by unfold outSlot; rw [if_pos h]
theorem outSlot_neg {a : Memref sig .scVector .vmem S25600 .f32} {sm : DmaSem sig} {m : ℕ} (h : ¬ (2 ≤ m ∧ valid L (m - 2))) :
    outSlot (F := F) d L a sm m = iprop((∃ g, a.view.loc (thr d L) ↦{fullShare} g) ∗ semVal (thr d L, SemLoc.dma sm) 0) := by
  unfold outSlot; rw [if_neg h]

/-- A fetch in flight, its source window spelt by any offsets equal to piece `n`'s, fills the fetch slot for `n`. -/
theorem fl_in {off : Fin 2 → ℕ} {n : ℕ} (h : off = ![11, pos L n]) (p : ∀ a, off a + S1x3200.size a ≤ S22x1600000.size a) (v : valid L n)
    (a : Memref sig .scVector .vmem S8x3200 .f32) (sm : DmaSem sig) :
    (iprop(∃ g, Transfers.Flight countersEmb (thr d L) (SemLoc.dma sm) (default : HIx 22) NN
        iprop((a.view.loc (thr d L) ↦{fullShare} g)
          ∗ (((xtW).slice (Rect.unit (s := S22x1600000) off S1x3200.size p) (fun _ => rfl)).view.loc (thr d L)
              ↦[((xtW).slice (Rect.unit (s := S22x1600000) off S1x3200.size p) (fun _ => rfl)).view.set]{fullShare} fx))) : sProp 𝕄)
      ⊢ inSlot d L fx a sm n := by
  rw [inSlot_pos d L fx v]
  iintro ⟨%g, H⟩
  have hD : (iprop((a.view.loc (thr d L) ↦{fullShare} g)
          ∗ (((xtW).slice (Rect.unit (s := S22x1600000) off S1x3200.size p) (fun _ => rfl)).view.loc (thr d L)
              ↦[((xtW).slice (Rect.unit (s := S22x1600000) off S1x3200.size p) (fun _ => rfl)).view.set]{fullShare} fx)) : sProp 𝕄)
      ⊢ iprop((a.view.loc (thr d L) ↦{fullShare} g) ∗ xtPiece d L fx n) := by
    iintro ⟨H1, H2⟩
    isplitl [H1]; · iexact H1
    iapply (Entails.of_eq (in_congr d L h p (in_inb L n) fx)); iexact H2
  iexists g
  iapply (Transfers.Flight_mono countersEmb (thr d L) hD); iexact H

/-- A write-out in flight, its destination window spelt by any offsets equal to piece `n`'s, with the rest of the
    staging buffer, fills the write-out slot for `n + 2`. -/
theorem fl_out {off : Fin 1 → ℕ} {n : ℕ} (h : off = ![pos L n]) (p : ∀ a, off a + S3200.size a ≤ S1600000.size a) (v : valid L n)
    (a : Memref sig .scVector .vmem S25600 .f32) (sm : DmaSem sig) :
    (iprop(∃ (f : Buf (Elt F) ((oW).view.loc (thr d L))) (g : Buf (Elt F) (a.view.loc (thr d L))), Transfers.Flight countersEmb (thr d L) (SemLoc.dma sm) (default : HIx 22) NN
        iprop((((oW).slice (Rect.unit (s := S1600000) off S3200.size p) (fun _ => rfl)).view.loc (thr d L)
              ↦[((oW).slice (Rect.unit (s := S1600000) off S3200.size p) (fun _ => rfl)).view.set]{fullShare} f)
          ∗ ((stg a).view.loc (thr d L) ↦[(stg a).view.set]{fullShare} g))
        ∗ (a.view.loc (thr d L) ↦[Finset.univ \ (stg a).view.set]{fullShare} g)) : sProp 𝕄)
      ⊢ outSlot (F := F) d L a sm (n + 2) := by
  rw [outSlot_pos (F := F) d L (m := n + 2) ⟨by omega, by simpa using v⟩]
  iintro ⟨%f, %g, H, R⟩
  have hD : (iprop((((oW).slice (Rect.unit (s := S1600000) off S3200.size p) (fun _ => rfl)).view.loc (thr d L)
              ↦[((oW).slice (Rect.unit (s := S1600000) off S3200.size p) (fun _ => rfl)).view.set]{fullShare} f)
          ∗ ((stg a).view.loc (thr d L) ↦[(stg a).view.set]{fullShare} g)) : sProp 𝕄)
      ⊢ iprop(oPiece (F := F) d L (n + 2 - 2) ∗ ((stg a).view.loc (thr d L) ↦[(stg a).view.set]{fullShare} g)) := by
    rw [Nat.add_sub_cancel]
    iintro ⟨H1, H2⟩
    isplitl [H1]
    · iexists f; iapply (Entails.of_eq (out_congr d L h p (out_inb L n) f)); iexact H1
    · iexact H2
  iexists g
  isplitl [H]
  · iapply (Transfers.Flight_mono countersEmb (thr d L) hD); iexact H
  · iexact R

/-! The pieces outside the slots, from one trip to the next. -/
def xCore (k : ℕ) : Finset ℕ := (Finset.range 18).filter fun n => n ≠ 2 * k ∧ n ≠ 2 * k + 1 ∧ n ≠ 2 * k + 2 ∧ n ≠ 2 * k + 3
def oCore (k : ℕ) : Finset ℕ := (Finset.range 18).filter fun n => n + 2 ≠ 2 * k ∧ n + 2 ≠ 2 * k + 1 ∧ n ≠ 2 * k ∧ n ≠ 2 * k + 1

omit [FloatOps F] in
theorem xSet_out (Φ : ℕ → sProp 𝕄) (k : ℕ) (hk : k < 8) : bigSep (xSet k) Φ = iprop(Φ (2 * k + 2) ∗ Φ (2 * k + 3) ∗ bigSep (xCore k) Φ) := by
  have e : ((xSet k).erase (2 * k + 2)).erase (2 * k + 3) = xCore k := by
    ext n; simp only [xSet, xCore, Finset.mem_erase, Finset.mem_filter, Finset.mem_range]; omega
  rw [← e]; exact two_out (by simp only [xSet, Finset.mem_filter, Finset.mem_range]; omega) (by simp only [xSet, Finset.mem_filter, Finset.mem_range]; omega) (by omega)
omit [FloatOps F] in
theorem xSet_in (Φ : ℕ → sProp 𝕄) (k : ℕ) (hk : k < 8) : bigSep (xSet (k + 1)) Φ = iprop(Φ (2 * k) ∗ Φ (2 * k + 1) ∗ bigSep (xCore k) Φ) := by
  have e : ((xSet (k + 1)).erase (2 * k)).erase (2 * k + 1) = xCore k := by
    ext n; simp only [xSet, xCore, Finset.mem_erase, Finset.mem_filter, Finset.mem_range]; omega
  rw [← e]; exact two_out (by simp only [xSet, Finset.mem_filter, Finset.mem_range]; omega) (by simp only [xSet, Finset.mem_filter, Finset.mem_range]; omega) (by omega)
omit [FloatOps F] in
theorem oSet_out (Φ : ℕ → sProp 𝕄) (k : ℕ) (hk : k < 8) : bigSep (oSet k) Φ = iprop(Φ (2 * k) ∗ Φ (2 * k + 1) ∗ bigSep (oCore k) Φ) := by
  have e : ((oSet k).erase (2 * k)).erase (2 * k + 1) = oCore k := by
    ext n; simp only [oSet, oCore, Finset.mem_erase, Finset.mem_filter, Finset.mem_range]; omega
  rw [← e]; exact two_out (by simp only [oSet, Finset.mem_filter, Finset.mem_range]; omega) (by simp only [oSet, Finset.mem_filter, Finset.mem_range]; omega) (by omega)
omit [FloatOps F] in
theorem oSet_in (Φ : ℕ → sProp 𝕄) (k : ℕ) (hk : k < 8) (hk1 : 1 ≤ k) :
    bigSep (oSet (k + 1)) Φ = iprop(Φ (2 * k - 2) ∗ Φ (2 * k - 1) ∗ bigSep (oCore k) Φ) := by
  have e : ((oSet (k + 1)).erase (2 * k - 2)).erase (2 * k - 1) = oCore k := by
    ext n; simp only [oSet, oCore, Finset.mem_erase, Finset.mem_filter, Finset.mem_range]; omega
  rw [← e]; exact two_out (by simp only [oSet, Finset.mem_filter, Finset.mem_range]; omega) (by simp only [oSet, Finset.mem_filter, Finset.mem_range]; omega) (by omega)

theorem xP_pos {n : ℕ} (v : valid L n) : xP d L fx n = xtPiece d L fx n := if_pos v
theorem oP_pos {n : ℕ} (v : valid L n) : oP (F := F) d L n = oPiece (F := F) d L n := if_pos v
theorem xP_neg {n : ℕ} (v : ¬ valid L n) : xP d L fx n = iprop(emp) := if_neg v
theorem oP_neg {n : ℕ} (v : ¬ valid L n) : oP (F := F) d L n = iprop(emp) := if_neg v

/-- Piece `n` of the result at its final contents: row 11 of the transposed argument. -/
def oQ (n : ℕ) : sProp 𝕄 :=
  if valid L n then (outM L n).view.loc (thr d L) ↦[(outM L n).view.set]{fullShare} (Cert.Spec.row 11 fx) else iprop(emp)

/-- What a tile is handed for the call: its pieces of row 11 of the transposed argument, at the argument's contents, and
    its pieces of the result at some contents. What it hands back: the same pieces of the argument, and its pieces of
    the result holding the row. -/
def goRes : sProp 𝕄 := iprop(bigSep (Finset.range 18) (xP d L fx) ∗ bigSep (Finset.range 18) (oP (F := F) d L))
def tdRes : sProp 𝕄 := iprop(bigSep (Finset.range 18) (xP d L fx) ∗ bigSep (Finset.range 18) (oQ d L fx))

end Tile

end Cert.Proof.TileK11

end
-- ==== Proof.TileK12Defs.lean ====
/-
  One vector subcore's task of copy kernel 12 (counting from 0): definitions. The task moves its pieces of row 12 of the
  transposed argument (pieces of 3200 consecutive elements, piece number 2·s + c + 32·n for the subcore (c, s) and
  n = 0, 1, … while that number is below 500) into the flat result: each piece is fetched into a staging row, copied
  16 lanes at a time into a flat staging buffer, and written out, two pieces in flight at a time. Here: the pieces as
  memrefs, the program's own spellings of them, the printed conditions as facts about the trip, the two slots' states
  between trips, and what the tile holds outside the slots.
-/
import proofs.«206869_g37898791420194_cont_8to1_b_558_20_alg».proof.Defs
import Idealize.ShloMosaic.Lib.SparseCore.Launch
import Idealize.ShloMosaic.Lib.StableHlo.Run
import Idealize.ShloMosaic.Lib.Pipeline.Kit
import Idealize.ShloMosaic.Lib.Tactic
import proofs.«206869_g37898791420194_cont_8to1_b_558_20_alg».proof.Proof.Gen.KernelIdeal
import proofs.«206869_g37898791420194_cont_8to1_b_558_20_alg».proof.Proof.Gen.KernelIdeal.Skeleton
import proofs.«206869_g37898791420194_cont_8to1_b_558_20_alg».proof.Proof.Spec

noncomputable section

namespace Cert.Proof.TileK12

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

abbrev ΛP : Labels := Pipeline.Sig Λ₀ (Fin 0) fun p => (pcfgs (F := F) p).Adm
abbrev K : SparseCore.Cfg τ sig (ΛP (F := F)) 22 := sc (F := F)
abbrev 𝒱₀ : Variants := Variants.none

abbrev UH : Type := URounds (GSem nD τ sig) ℕ
abbrev UU : Type := UH × Counters

local notation "𝕄" => MT nD τ sig (HIx 22) (Elt F) ℕ UU ℕ

local notation "xtW" => (Memref.whole Cert.KernelIdeal.main_v0_scv : Memref Cert.KernelIdeal.sig Kind.scVector Space.hbm Cert.KernelIdeal.S22x1600000 EltTy.f32)
local notation "oW" => (Memref.whole Cert.KernelIdeal.main_v13_scv : Memref Cert.KernelIdeal.sig Kind.scVector Space.hbm Cert.KernelIdeal.S1600000 EltTy.f32)
local notation "a4" => (Memref.whole Cert.KernelIdeal.cc12_scratch0 : Memref Cert.KernelIdeal.sig Kind.scVector Space.vmem Cert.KernelIdeal.S8x3200 EltTy.f32)
local notation "a5" => (Memref.whole Cert.KernelIdeal.cc12_scratch1 : Memref Cert.KernelIdeal.sig Kind.scVector Space.vmem Cert.KernelIdeal.S8x3200 EltTy.f32)
local notation "a6" => (Memref.whole Cert.KernelIdeal.cc12_scratch2 : Memref Cert.KernelIdeal.sig Kind.scVector Space.vmem Cert.KernelIdeal.S25600 EltTy.f32)
local notation "a7" => (Memref.whole Cert.KernelIdeal.cc12_scratch3 : Memref Cert.KernelIdeal.sig Kind.scVector Space.vmem Cert.KernelIdeal.S25600 EltTy.f32)

variable [FloatOps F]

section Tile

variable (d : Dev nD) (L : grid12.Coords)

abbrev cV (L : grid12.Coords) : Fin τ.nSC := (L 0).castLE hcore12
abbrev jV (L : grid12.Coords) : Fin τ.nSub := (L 1).castLE hsub12
abbrev thr (d : Dev nD) (L : grid12.Coords) : Thread nD τ := V d (cV L) (jV L)

/-- The tile's number 2·s + c, and whether it has sixteen pieces (numbers below 20) or fifteen. -/
abbrev wid (L : grid12.Coords) : ℕ := 2 * (L 1).val + (L 0).val
abbrev big (L : grid12.Coords) : Prop := wid L < 20

omit [FloatOps F] in
theorem wid_lt (L : grid12.Coords) : wid L < 32 := by
  have h0 : (L 0).val < 2 := (L 0).isLt
  have h1 : (L 1).val < 16 := (L 1).isLt
  unfold wid; omega

/-- Piece `n` of the tile exists: `n < 15`, or `n = 15` on a tile with sixteen pieces. It is the piece number
    `wid + 32·n < 500` of the row. -/
def valid (L : grid12.Coords) (n : ℕ) : Prop := n < 15 ∨ (n = 15 ∧ big L)
instance (L : grid12.Coords) (n : ℕ) : Decidable (valid L n) := by unfold valid big; infer_instance

omit [FloatOps F] in
theorem valid_iff (L : grid12.Coords) (n : ℕ) : valid L n ↔ wid L + 32 * n < 500 := by
  have := wid_lt L; unfold valid big; omega

/-- Where piece `n` starts in the row (clamped to the last piece of the row, so that the rectangle is in bounds for
    every `n`; for a valid piece the clamp is idle). -/
abbrev pos (L : grid12.Coords) (n : ℕ) : ℕ := 3200 * min (wid L + 32 * n) 499

omit [FloatOps F] in
theorem pos_valid {L : grid12.Coords} {n : ℕ} (h : valid L n) : pos L n = 6400 * (L 1).val + 3200 * (L 0).val + 102400 * n := by
  have := (valid_iff L n).mp h; unfold pos wid at *; omega

omit [FloatOps F] in
theorem in_inb (L : grid12.Coords) (n : ℕ) : ∀ a, (![12, pos L n] : Fin 2 → ℕ) a + S1x3200.size a ≤ S22x1600000.size a := by
  intro a; fin_cases a
  · show 12 + 1 ≤ 22; omega
  · show pos L n + 3200 ≤ 1600000; unfold pos; omega
omit [FloatOps F] in
theorem out_inb (L : grid12.Coords) (n : ℕ) : ∀ a, (![pos L n] : Fin 1 → ℕ) a + S3200.size a ≤ S1600000.size a := by
  intro a; fin_cases a
  show pos L n + 3200 ≤ 1600000; unfold pos; omega

/-- Piece `n` of row 12 of the transposed argument, and piece `n` of the flat result, as memrefs of the tile. -/
abbrev inM (L : grid12.Coords) (n : ℕ) : Memref sig .scVector .hbm S1x3200 .f32 :=
  (xtW).slice (Rect.unit (s := S22x1600000) ![12, pos L n] S1x3200.size (in_inb L n)) (fun _ => rfl)
abbrev outM (L : grid12.Coords) (n : ℕ) : Memref sig .scVector .hbm S3200 .f32 :=
  (oW).slice (Rect.unit (s := S1600000) ![pos L n] S3200.size (out_inb L n)) (fun _ => rfl)

/-! The program's own slices are these pieces: by the closed forms of its offset functions. -/

omit [FloatOps F] in
theorem off2 {a b : ℕ} (h : a = b) : (![12, a] : Fin 2 → ℕ) = ![12, b] := by rw [h]
omit [FloatOps F] in
theorem off1' {a b : ℕ} (h : a = b) : (![a] : Fin 1 → ℕ) = ![b] := by rw [h]

omit [FloatOps F] in
theorem off_in0 (L : grid12.Coords) (h : valid L 0) : k12_off1 L 0#32 = ![12, pos L 0] :=
  (k12_off1_eq L 0).trans (off2 (by rw [pos_valid h]; simp))
omit [FloatOps F] in
theorem off_in1 (L : grid12.Coords) (h : valid L 1) : k12_off1 L 32#32 = ![12, pos L 1] :=
  (k12_off1_eq L 1).trans (off2 (by rw [pos_valid h]; simp))
omit [FloatOps F] in
theorem off_6 (L : grid12.Coords) (t : Fin k12_t1_loop.trips) (h : valid L (2 * t.val + 2)) : k12_off6 L t = ![12, pos L (2 * t.val + 2)] :=
  (k12_off6_eq L t).trans (off2 (by rw [pos_valid h]; omega))
omit [FloatOps F] in
theorem off_11 (L : grid12.Coords) (t : Fin k12_t1_loop.trips) (h : valid L (2 * t.val + 3)) : k12_off11 L t = ![12, pos L (2 * t.val + 3)] :=
  (k12_off11_eq L t).trans (off2 (by rw [pos_valid h]; omega))
omit [FloatOps F] in
theorem off_5 (L : grid12.Coords) (t : Fin k12_t1_loop.trips) (h : valid L (2 * t.val)) : k12_off5 L t = ![pos L (2 * t.val)] :=
  (k12_off5_eq L t).trans (off1' (by rw [pos_valid h]; omega))
omit [FloatOps F] in
theorem off_10 (L : grid12.Coords) (t : Fin k12_t1_loop.trips) (h : valid L (2 * t.val + 1)) : k12_off10 L t = ![pos L (2 * t.val + 1)] :=
  (k12_off10_eq L t).trans (off1' (by rw [pos_valid h]; omega))

/-- Holding a 1 × 3200 window of the transposed argument, or a 3200 window of the result, by exactly its elements
    says the same whichever way the window's offsets are spelt. -/
theorem in_congr {off off' : Fin 2 → ℕ} (h : off = off') (p : ∀ a, off a + S1x3200.size a ≤ S22x1600000.size a)
    (p' : ∀ a, off' a + S1x3200.size a ≤ S22x1600000.size a) (f : Buf (Elt F) ((xtW).view.loc (thr d L))) :
    (((xtW).slice (Rect.unit (s := S22x1600000) off S1x3200.size p) (fun _ => rfl)).view.loc (thr d L)
        ↦[((xtW).slice (Rect.unit (s := S22x1600000) off S1x3200.size p) (fun _ => rfl)).view.set]{fullShare} f : sProp 𝕄)
      = (((xtW).slice (Rect.unit (s := S22x1600000) off' S1x3200.size p') (fun _ => rfl)).view.loc (thr d L)
        ↦[((xtW).slice (Rect.unit (s := S22x1600000) off' S1x3200.size p') (fun _ => rfl)).view.set]{fullShare} f) := by
  subst h; rfl
theorem out_congr {off off' : Fin 1 → ℕ} (h : off = off') (p : ∀ a, off a + S3200.size a ≤ S1600000.size a)
    (p' : ∀ a, off' a + S3200.size a ≤ S1600000.size a) (f : Buf (Elt F) ((oW).view.loc (thr d L))) :
    (((oW).slice (Rect.unit (s := S1600000) off S3200.size p) (fun _ => rfl)).view.loc (thr d L)
        ↦[((oW).slice (Rect.unit (s := S1600000) off S3200.size p) (fun _ => rfl)).view.set]{fullShare} f : sProp 𝕄)
      = (((oW).slice (Rect.unit (s := S1600000) off' S3200.size p') (fun _ => rfl)).view.loc (thr d L)
        ↦[((oW).slice (Rect.unit (s := S1600000) off' S3200.size p') (fun _ => rfl)).view.set]{fullShare} f) := by
  subst h; rfl

/-! The printed conditions, as facts about the trip and the tile. -/

omit [FloatOps F] in
theorem trips1 : k12_t1_loop.trips = 8 := by decide
omit [FloatOps F] in
theorem cond1_iff : ∀ (t : Fin k12_t1_loop.trips), k12_cond1 t = 1#1 ↔ 1 ≤ t.val := by decide +kernel
omit [FloatOps F] in
theorem cond2_iff : ∀ (L : grid12.Coords) (t : Fin k12_t1_loop.trips), k12_cond2 L t = 1#1 := by decide +kernel
omit [FloatOps F] in
theorem cond3_iff : ∀ (L : grid12.Coords) (t : Fin k12_t1_loop.trips), k12_cond3 L t = 1#1 ↔ t.val ≤ 6 := by decide +kernel
omit [FloatOps F] in
theorem cond4_iff : ∀ (t : Fin k12_t1_loop.trips), k12_cond4 t = 1#1 ↔ 1 ≤ t.val := by decide +kernel
omit [FloatOps F] in
theorem cond5_iff : ∀ (L : grid12.Coords) (t : Fin k12_t1_loop.trips), k12_cond5 L t = 1#1 ↔ (t.val ≤ 6 ∨ big L) := by decide +kernel
omit [FloatOps F] in
theorem cond6_iff : ∀ (L : grid12.Coords) (t : Fin k12_t1_loop.trips), k12_cond6 L t = 1#1 ↔ (t.val ≤ 5 ∨ (t.val = 6 ∧ big L)) := by decide +kernel
omit [FloatOps F] in
theorem cond7_iff : ∀ (L : grid12.Coords), k12_cond7 L = 1#1 := by decide +kernel
omit [FloatOps F] in
theorem cond8_iff : ∀ (L : grid12.Coords), k12_cond8 L = 1#1 ↔ big L := by decide +kernel

variable (O : CellTallies nD τ sig (HIx 22)) (W : Waits sig (HIx 22))
variable (fx : Buf (Elt F) ((xtW).view.loc (thr d L)))

abbrev NN : ℕ := 102400

/-- The 3200-element window of a flat staging buffer that a piece is written out from. -/
abbrev stg (a : Memref sig .scVector .vmem S25600 .f32) : Memref sig .scVector .vmem S3200 .f32 :=
  a.slice (Rect.unit (s := S25600) ![0] S3200.size inb_S25600_S3200_0) (fun _ => rfl)

/-- Piece `n` of the argument row held by exactly its elements, at the argument's contents; piece `n` of the result
    held by exactly its elements, at some contents. -/
abbrev xtPiece (n : ℕ) : sProp 𝕄 := (inM L n).view.loc (thr d L) ↦[(inM L n).view.set]{fullShare} fx
abbrev oPiece (n : ℕ) : sProp 𝕄 := iprop(∃ f, (outM L n).view.loc (thr d L) ↦[(outM L n).view.set]{fullShare} f)

/-- The lane-copy loop of a slot: the staging row keeps its contents, the flat staging buffer holds some contents. -/
def laneInv0 (g4 : Buf (Elt F) ((a4).view.loc (thr d L))) (_ : ℕ) (_ : PUnit) : sProp 𝕄 :=
  iprop(((a4).view.loc (thr d L) ↦{fullShare} g4) ∗ (∃ g, (a6).view.loc (thr d L) ↦{fullShare} g))
def laneInv1 (g5 : Buf (Elt F) ((a5).view.loc (thr d L))) (_ : ℕ) (_ : PUnit) : sProp 𝕄 :=
  iprop(((a5).view.loc (thr d L) ↦{fullShare} g5) ∗ (∃ g, (a7).view.loc (thr d L) ↦{fullShare} g))

/-- A fetch slot before trip work on piece `n`: the piece's fetch in flight (it will hand back the staging row at some
    contents, and the piece), or, when there is no such piece, the slot idle. -/
def inSlot (a : Memref sig .scVector .vmem S8x3200 .f32) (sm : DmaSem sig) (n : ℕ) : sProp 𝕄 :=
  if valid L n then
    iprop(∃ g, Transfers.Flight countersEmb (thr d L) (SemLoc.dma sm) (default : HIx 22) NN
      iprop((a.view.loc (thr d L) ↦{fullShare} g) ∗ xtPiece d L fx n))
  else iprop((∃ g, a.view.loc (thr d L) ↦{fullShare} g) ∗ semVal (thr d L, SemLoc.dma sm) 0)

/-- A write-out slot before trip work on piece `m`: piece `m - 2`'s write-out in flight (it will hand back that piece
    of the result at some contents, and the staging window), the rest of the staging buffer beside it; or idle. -/
def outSlot (a : Memref sig .scVector .vmem S25600 .f32) (sm : DmaSem sig) (m : ℕ) : sProp 𝕄 :=
  if 2 ≤ m ∧ valid L (m - 2) then
    iprop(∃ g, Transfers.Flight countersEmb (thr d L) (SemLoc.dma sm) (default : HIx 22) NN
        iprop(oPiece d L (m - 2) ∗ ((stg a).view.loc (thr d L) ↦[(stg a).view.set]{fullShare} g))
      ∗ (a.view.loc (thr d L) ↦[Finset.univ \ (stg a).view.set]{fullShare} g))
  else iprop((∃ g, a.view.loc (thr d L) ↦{fullShare} g) ∗ semVal (thr d L, SemLoc.dma sm) 0)

/-- Piece `n` when it exists, nothing otherwise. -/
def xP (n : ℕ) : sProp 𝕄 := if valid L n then xtPiece d L fx n else iprop(emp)
def oP (n : ℕ) : sProp 𝕄 := if valid L n then oPiece d L n else iprop(emp)

/-- What the tile holds outside the slots before trip `t`: every piece of the argument row but those being fetched
    (`2t`, `2t + 1`), every piece of the result but those being written out (`2t - 2`, `2t - 1`). -/
def xSet (t : ℕ) : Finset ℕ := (Finset.range 18).filter fun n => n ≠ 2 * t ∧ n ≠ 2 * t + 1
def oSet (t : ℕ) : Finset ℕ := (Finset.range 18).filter fun n => n + 2 ≠ 2 * t ∧ n + 2 ≠ 2 * t + 1

def inv (t : ℕ) (_ : PUnit) : sProp 𝕄 :=
  iprop(Transfers.MayWaits (thr d L) (none : HIx 22) O
    ∗ (∃ W', ⌜∀ p ∈ W', p ∈ W ∨ p.2 = none⌝ ∗ owes (thr d L) O W')
    ∗ bigSep (xSet t) (xP d L fx) ∗ bigSep (oSet t) (oP d L)
    ∗ inSlot d L fx a4 cc12_scratch4.sem (2 * t) ∗ outSlot d L a6 cc12_scratch6.sem (2 * t)
    ∗ inSlot d L fx a5 cc12_scratch5.sem (2 * t + 1) ∗ outSlot d L a7 cc12_scratch7.sem (2 * t + 1))

omit [FloatOps F] in
theorem two_out {Φ : ℕ → sProp 𝕄} {s : Finset ℕ} {a b : ℕ} (ha : a ∈ s) (hb : b ∈ s) (hab : a ≠ b) :
    bigSep s Φ = iprop(Φ a ∗ Φ b ∗ bigSep ((s.erase a).erase b) Φ) := by
  rw [SparseCore.bigSep_erase' ha, SparseCore.bigSep_erase' (Finset.mem_erase.mpr ⟨fun e => hab e.symm, hb⟩)]

omit [FloatOps F] in
theorem range18_split : (Finset.range 18) = insert 0 (insert 1 (xSet 0)) := by decide

theorem xRange_split (v0 : valid L 0) (v1 : valid L 1) :
    bigSep (Finset.range 18) (xP d L fx) = iprop(xtPiece d L fx 0 ∗ xtPiece d L fx 1 ∗ bigSep (xSet 0) (xP d L fx)) := by
  rw [range18_split, SparseCore.bigSep_insert' (by decide), SparseCore.bigSep_insert' (by decide)]
  unfold xP; rw [if_pos v0, if_pos v1]
omit [FloatOps F] in
theorem oSet_zero : oSet 0 = Finset.range 18 := by decide

theorem inSlot_pos {a : Memref sig .scVector .vmem S8x3200 .f32} {sm : DmaSem sig} {n : ℕ} (v : valid L n) :
    inSlot d L fx a sm n = iprop(∃ g, Transfers.Flight countersEmb (thr d L) (SemLoc.dma sm) (default : HIx 22) NN
      iprop((a.view.loc (thr d L) ↦{fullShare} g) ∗ xtPiece d L fx n)) := by unfold inSlot; rw [if_pos v]
theorem inSlot_neg {a : Memref sig .scVector .vmem S8x3200 .f32} {sm : DmaSem sig} {n : ℕ} (v : ¬ valid L n) :
    inSlot d L fx a sm n = iprop((∃ g, a.view.loc (thr d L) ↦{fullShare} g) ∗ semVal (thr d L, SemLoc.dma sm) 0) := by
  unfold inSlot; rw [if_neg v]
theorem outSlot_pos {a : Memref sig .scVector .vmem S25600 .f32} {sm : DmaSem sig} {m : ℕ} (h : 2 ≤ m ∧ valid L (m - 2)) :
    outSlot (F := F) d L a sm m = iprop(∃ g, Transfers.Flight countersEmb (thr d L) (SemLoc.dma sm) (default : HIx 22) NN
        iprop(oPiece (F := F) d L (m - 2) ∗ ((stg a).view.loc (thr d L) ↦[(stg a).view.set]{fullShare} g))
      ∗ (a.view.loc (thr d L) ↦[Finset.univ \ (stg a).view.set]{fullShare} g)) := by unfold outSlot; rw [if_pos h]
theorem outSlot_neg {a : Memref sig .scVector .vmem S25600 .f32} {sm : DmaSem sig} {m : ℕ} (h : ¬ (2 ≤ m ∧ valid L (m - 2))) :
    outSlot (F := F) d L a sm m = iprop((∃ g, a.view.loc (thr d L) ↦{fullShare} g) ∗ semVal (thr d L, SemLoc.dma sm) 0) := by
  unfold outSlot; rw [if_neg h]

/-- A fetch in flight, its source window spelt by any offsets equal to piece `n`'s, fills the fetch slot for `n`. -/
theorem fl_in {off : Fin 2 → ℕ} {n : ℕ} (h : off = ![12, pos L n]) (p : ∀ a, off a + S1x3200.size a ≤ S22x1600000.size a) (v : valid L n)
    (a : Memref sig .scVector .vmem S8x3200 .f32) (sm : DmaSem sig) :
    (iprop(∃ g, Transfers.Flight countersEmb (thr d L) (SemLoc.dma sm) (default : HIx 22) NN
        iprop((a.view.loc (thr d L) ↦{fullShare} g)
          ∗ (((xtW).slice (Rect.unit (s := S22x1600000) off S1x3200.size p) (fun _ => rfl)).view.loc (thr d L)
              ↦[((xtW).slice (Rect.unit (s := S22x1600000) off S1x3200.size p) (fun _ => rfl)).view.set]{fullShare} fx))) : sProp 𝕄)
      ⊢ inSlot d L fx a sm n := by
  rw [inSlot_pos d L fx v]
  iintro ⟨%g, H⟩
  have hD : (iprop((a.view.loc (thr d L) ↦{fullShare} g)
          ∗ (((xtW).slice (Rect.unit (s := S22x1600000) off S1x3200.size p) (fun _ => rfl)).view.loc (thr d L)
              ↦[((xtW).slice (Rect.unit (s := S22x1600000) off S1x3200.size p) (fun _ => rfl)).view.set]{fullShare} fx)) : sProp 𝕄)
      ⊢ iprop((a.view.loc (thr d L) ↦{fullShare} g) ∗ xtPiece d L fx n) := by
    iintro ⟨H1, H2⟩
    isplitl [H1]; · iexact H1
    iapply (Entails.of_eq (in_congr d L h p (in_inb L n) fx)); iexact H2
  iexists g
  iapply (Transfers.Flight_mono countersEmb (thr d L) hD); iexact H

/-- A write-out in flight, its destination window spelt by any offsets equal to piece `n`'s, with the rest of the
    staging buffer, fills the write-out slot for `n + 2`. -/
theorem fl_out {off : Fin 1 → ℕ} {n : ℕ} (h : off = ![pos L n]) (p : ∀ a, off a + S3200.size a ≤ S1600000.size a) (v : valid L n)
    (a : Memref sig .scVector .vmem S25600 .f32) (sm : DmaSem sig) :
    (iprop(∃ (f : Buf (Elt F) ((oW).view.loc (thr d L))) (g : Buf (Elt F) (a.view.loc (thr d L))), Transfers.Flight countersEmb (thr d L) (SemLoc.dma sm) (default : HIx 22) NN
        iprop((((oW).slice (Rect.unit (s := S1600000) off S3200.size p) (fun _ => rfl)).view.loc (thr d L)
              ↦[((oW).slice (Rect.unit (s := S1600000) off S3200.size p) (fun _ => rfl)).view.set]{fullShare} f)
          ∗ ((stg a).view.loc (thr d L) ↦[(stg a).view.set]{fullShare} g))
        ∗ (a.view.loc (thr d L) ↦[Finset.univ \ (stg a).view.set]{fullShare} g)) : sProp 𝕄)
      ⊢ outSlot (F := F) d L a sm (n + 2) := by
  rw [outSlot_pos (F := F) d L (m := n + 2) ⟨by omega, by simpa using v⟩]
  iintro ⟨%f, %g, H, R⟩
  have hD : (iprop((((oW).slice (Rect.unit (s := S1600000) off S3200.size p) (fun _ => rfl)).view.loc (thr d L)
              ↦[((oW).slice (Rect.unit (s := S1600000) off S3200.size p) (fun _ => rfl)).view.set]{fullShare} f)
          ∗ ((stg a).view.loc (thr d L) ↦[(stg a).view.set]{fullShare} g)) : sProp 𝕄)
      ⊢ iprop(oPiece (F := F) d L (n + 2 - 2) ∗ ((stg a).view.loc (thr d L) ↦[(stg a).view.set]{fullShare} g)) := by
    rw [Nat.add_sub_cancel]
    iintro ⟨H1, H2⟩
    isplitl [H1]
    · iexists f; iapply (Entails.of_eq (out_congr d L h p (out_inb L n) f)); iexact H1
    · iexact H2
  iexists g
  isplitl [H]
  · iapply (Transfers.Flight_mono countersEmb (thr d L) hD); iexact H
  · iexact R

/-! The pieces outside the slots, from one trip to the next. -/
def xCore (k : ℕ) : Finset ℕ := (Finset.range 18).filter fun n => n ≠ 2 * k ∧ n ≠ 2 * k + 1 ∧ n ≠ 2 * k + 2 ∧ n ≠ 2 * k + 3
def oCore (k : ℕ) : Finset ℕ := (Finset.range 18).filter fun n => n + 2 ≠ 2 * k ∧ n + 2 ≠ 2 * k + 1 ∧ n ≠ 2 * k ∧ n ≠ 2 * k + 1

omit [FloatOps F] in
theorem xSet_out (Φ : ℕ → sProp 𝕄) (k : ℕ) (hk : k < 8) : bigSep (xSet k) Φ = iprop(Φ (2 * k + 2) ∗ Φ (2 * k + 3) ∗ bigSep (xCore k) Φ) := by
  have e : ((xSet k).erase (2 * k + 2)).erase (2 * k + 3) = xCore k := by
    ext n; simp only [xSet, xCore, Finset.mem_erase, Finset.mem_filter, Finset.mem_range]; omega
  rw [← e]; exact two_out (by simp only [xSet, Finset.mem_filter, Finset.mem_range]; omega) (by simp only [xSet, Finset.mem_filter, Finset.mem_range]; omega) (by omega)
omit [FloatOps F] in
theorem xSet_in (Φ : ℕ → sProp 𝕄) (k : ℕ) (hk : k < 8) : bigSep (xSet (k + 1)) Φ = iprop(Φ (2 * k) ∗ Φ (2 * k + 1) ∗ bigSep (xCore k) Φ) := by
  have e : ((xSet (k + 1)).erase (2 * k)).erase (2 * k + 1) = xCore k := by
    ext n; simp only [xSet, xCore, Finset.mem_erase, Finset.mem_filter, Finset.mem_range]; omega
  rw [← e]; exact two_out (by simp only [xSet, Finset.mem_filter, Finset.mem_range]; omega) (by simp only [xSet, Finset.mem_filter, Finset.mem_range]; omega) (by omega)
omit [FloatOps F] in
theorem oSet_out (Φ : ℕ → sProp 𝕄) (k : ℕ) (hk : k < 8) : bigSep (oSet k) Φ = iprop(Φ (2 * k) ∗ Φ (2 * k + 1) ∗ bigSep (oCore k) Φ) := by
  have e : ((oSet k).erase (2 * k)).erase (2 * k + 1) = oCore k := by
    ext n; simp only [oSet, oCore, Finset.mem_erase, Finset.mem_filter, Finset.mem_range]; omega
  rw [← e]; exact two_out (by simp only [oSet, Finset.mem_filter, Finset.mem_range]; omega) (by simp only [oSet, Finset.mem_filter, Finset.mem_range]; omega) (by omega)
omit [FloatOps F] in
theorem oSet_in (Φ : ℕ → sProp 𝕄) (k : ℕ) (hk : k < 8) (hk1 : 1 ≤ k) :
    bigSep (oSet (k + 1)) Φ = iprop(Φ (2 * k - 2) ∗ Φ (2 * k - 1) ∗ bigSep (oCore k) Φ) := by
  have e : ((oSet (k + 1)).erase (2 * k - 2)).erase (2 * k - 1) = oCore k := by
    ext n; simp only [oSet, oCore, Finset.mem_erase, Finset.mem_filter, Finset.mem_range]; omega
  rw [← e]; exact two_out (by simp only [oSet, Finset.mem_filter, Finset.mem_range]; omega) (by simp only [oSet, Finset.mem_filter, Finset.mem_range]; omega) (by omega)

theorem xP_pos {n : ℕ} (v : valid L n) : xP d L fx n = xtPiece d L fx n := if_pos v
theorem oP_pos {n : ℕ} (v : valid L n) : oP (F := F) d L n = oPiece (F := F) d L n := if_pos v
theorem xP_neg {n : ℕ} (v : ¬ valid L n) : xP d L fx n = iprop(emp) := if_neg v
theorem oP_neg {n : ℕ} (v : ¬ valid L n) : oP (F := F) d L n = iprop(emp) := if_neg v

/-- Piece `n` of the result at its final contents: row 12 of the transposed argument. -/
def oQ (n : ℕ) : sProp 𝕄 :=
  if valid L n then (outM L n).view.loc (thr d L) ↦[(outM L n).view.set]{fullShare} (Cert.Spec.row 12 fx) else iprop(emp)

/-- What a tile is handed for the call: its pieces of row 12 of the transposed argument, at the argument's contents, and
    its pieces of the result at some contents. What it hands back: the same pieces of the argument, and its pieces of
    the result holding the row. -/
def goRes : sProp 𝕄 := iprop(bigSep (Finset.range 18) (xP d L fx) ∗ bigSep (Finset.range 18) (oP (F := F) d L))
def tdRes : sProp 𝕄 := iprop(bigSep (Finset.range 18) (xP d L fx) ∗ bigSep (Finset.range 18) (oQ d L fx))

end Tile

end Cert.Proof.TileK12

end
-- ==== Proof.TileK13Defs.lean ====
/-
  One vector subcore's task of copy kernel 13 (counting from 0): definitions. The task moves its pieces of row 13 of the
  transposed argument (pieces of 3200 consecutive elements, piece number 2·s + c + 32·n for the subcore (c, s) and
  n = 0, 1, … while that number is below 500) into the flat result: each piece is fetched into a staging row, copied
  16 lanes at a time into a flat staging buffer, and written out, two pieces in flight at a time. Here: the pieces as
  memrefs, the program's own spellings of them, the printed conditions as facts about the trip, the two slots' states
  between trips, and what the tile holds outside the slots.
-/
import proofs.«206869_g37898791420194_cont_8to1_b_558_20_alg».proof.Defs
import Idealize.ShloMosaic.Lib.SparseCore.Launch
import Idealize.ShloMosaic.Lib.StableHlo.Run
import Idealize.ShloMosaic.Lib.Pipeline.Kit
import Idealize.ShloMosaic.Lib.Tactic
import proofs.«206869_g37898791420194_cont_8to1_b_558_20_alg».proof.Proof.Gen.KernelIdeal
import proofs.«206869_g37898791420194_cont_8to1_b_558_20_alg».proof.Proof.Gen.KernelIdeal.Skeleton
import proofs.«206869_g37898791420194_cont_8to1_b_558_20_alg».proof.Proof.Spec

noncomputable section

namespace Cert.Proof.TileK13

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

abbrev ΛP : Labels := Pipeline.Sig Λ₀ (Fin 0) fun p => (pcfgs (F := F) p).Adm
abbrev K : SparseCore.Cfg τ sig (ΛP (F := F)) 22 := sc (F := F)
abbrev 𝒱₀ : Variants := Variants.none

abbrev UH : Type := URounds (GSem nD τ sig) ℕ
abbrev UU : Type := UH × Counters

local notation "𝕄" => MT nD τ sig (HIx 22) (Elt F) ℕ UU ℕ

local notation "xtW" => (Memref.whole Cert.KernelIdeal.main_v0_scv : Memref Cert.KernelIdeal.sig Kind.scVector Space.hbm Cert.KernelIdeal.S22x1600000 EltTy.f32)
local notation "oW" => (Memref.whole Cert.KernelIdeal.main_v14_scv : Memref Cert.KernelIdeal.sig Kind.scVector Space.hbm Cert.KernelIdeal.S1600000 EltTy.f32)
local notation "a4" => (Memref.whole Cert.KernelIdeal.cc13_scratch0 : Memref Cert.KernelIdeal.sig Kind.scVector Space.vmem Cert.KernelIdeal.S8x3200 EltTy.f32)
local notation "a5" => (Memref.whole Cert.KernelIdeal.cc13_scratch1 : Memref Cert.KernelIdeal.sig Kind.scVector Space.vmem Cert.KernelIdeal.S8x3200 EltTy.f32)
local notation "a6" => (Memref.whole Cert.KernelIdeal.cc13_scratch2 : Memref Cert.KernelIdeal.sig Kind.scVector Space.vmem Cert.KernelIdeal.S25600 EltTy.f32)
local notation "a7" => (Memref.whole Cert.KernelIdeal.cc13_scratch3 : Memref Cert.KernelIdeal.sig Kind.scVector Space.vmem Cert.KernelIdeal.S25600 EltTy.f32)

variable [FloatOps F]

section Tile

variable (d : Dev nD) (L : grid13.Coords)

abbrev cV (L : grid13.Coords) : Fin τ.nSC := (L 0).castLE hcore13
abbrev jV (L : grid13.Coords) : Fin τ.nSub := (L 1).castLE hsub13
abbrev thr (d : Dev nD) (L : grid13.Coords) : Thread nD τ := V d (cV L) (jV L)

/-- The tile's number 2·s + c, and whether it has sixteen pieces (numbers below 20) or fifteen. -/
abbrev wid (L : grid13.Coords) : ℕ := 2 * (L 1).val + (L 0).val
abbrev big (L : grid13.Coords) : Prop := wid L < 20

omit [FloatOps F] in
theorem wid_lt (L : grid13.Coords) : wid L < 32 := by
  have h0 : (L 0).val < 2 := (L 0).isLt
  have h1 : (L 1).val < 16 := (L 1).isLt
  unfold wid; omega

/-- Piece `n` of the tile exists: `n < 15`, or `n = 15` on a tile with sixteen pieces. It is the piece number
    `wid + 32·n < 500` of the row. -/
def valid (L : grid13.Coords) (n : ℕ) : Prop := n < 15 ∨ (n = 15 ∧ big L)
instance (L : grid13.Coords) (n : ℕ) : Decidable (valid L n) := by unfold valid big; infer_instance

omit [FloatOps F] in
theorem valid_iff (L : grid13.Coords) (n : ℕ) : valid L n ↔ wid L + 32 * n < 500 := by
  have := wid_lt L; unfold valid big; omega

/-- Where piece `n` starts in the row (clamped to the last piece of the row, so that the rectangle is in bounds for
    every `n`; for a valid piece the clamp is idle). -/
abbrev pos (L : grid13.Coords) (n : ℕ) : ℕ := 3200 * min (wid L + 32 * n) 499

omit [FloatOps F] in
theorem pos_valid {L : grid13.Coords} {n : ℕ} (h : valid L n) : pos L n = 6400 * (L 1).val + 3200 * (L 0).val + 102400 * n := by
  have := (valid_iff L n).mp h; unfold pos wid at *; omega

omit [FloatOps F] in
theorem in_inb (L : grid13.Coords) (n : ℕ) : ∀ a, (![13, pos L n] : Fin 2 → ℕ) a + S1x3200.size a ≤ S22x1600000.size a := by
  intro a; fin_cases a
  · show 13 + 1 ≤ 22; omega
  · show pos L n + 3200 ≤ 1600000; unfold pos; omega
omit [FloatOps F] in
theorem out_inb (L : grid13.Coords) (n : ℕ) : ∀ a, (![pos L n] : Fin 1 → ℕ) a + S3200.size a ≤ S1600000.size a := by
  intro a; fin_cases a
  show pos L n + 3200 ≤ 1600000; unfold pos; omega

/-- Piece `n` of row 13 of the transposed argument, and piece `n` of the flat result, as memrefs of the tile. -/
abbrev inM (L : grid13.Coords) (n : ℕ) : Memref sig .scVector .hbm S1x3200 .f32 :=
  (xtW).slice (Rect.unit (s := S22x1600000) ![13, pos L n] S1x3200.size (in_inb L n)) (fun _ => rfl)
abbrev outM (L : grid13.Coords) (n : ℕ) : Memref sig .scVector .hbm S3200 .f32 :=
  (oW).slice (Rect.unit (s := S1600000) ![pos L n] S3200.size (out_inb L n)) (fun _ => rfl)

/-! The program's own slices are these pieces: by the closed forms of its offset functions. -/

omit [FloatOps F] in
theorem off2 {a b : ℕ} (h : a = b) : (![13, a] : Fin 2 → ℕ) = ![13, b] := by rw [h]
omit [FloatOps F] in
theorem off1' {a b : ℕ} (h : a = b) : (![a] : Fin 1 → ℕ) = ![b] := by rw [h]

omit [FloatOps F] in
theorem off_in0 (L : grid13.Coords) (h : valid L 0) : k13_off1 L 0#32 = ![13, pos L 0] :=
  (k13_off1_eq L 0).trans (off2 (by rw [pos_valid h]; simp))
omit [FloatOps F] in
theorem off_in1 (L : grid13.Coords) (h : valid L 1) : k13_off1 L 32#32 = ![13, pos L 1] :=
  (k13_off1_eq L 1).trans (off2 (by rw [pos_valid h]; simp))
omit [FloatOps F] in
theorem off_6 (L : grid13.Coords) (t : Fin k13_t1_loop.trips) (h : valid L (2 * t.val + 2)) : k13_off6 L t = ![13, pos L (2 * t.val + 2)] :=
  (k13_off6_eq L t).trans (off2 (by rw [pos_valid h]; omega))
omit [FloatOps F] in
theorem off_11 (L : grid13.Coords) (t : Fin k13_t1_loop.trips) (h : valid L (2 * t.val + 3)) : k13_off11 L t = ![13, pos L (2 * t.val + 3)] :=
  (k13_off11_eq L t).trans (off2 (by rw [pos_valid h]; omega))
omit [FloatOps F] in
theorem off_5 (L : grid13.Coords) (t : Fin k13_t1_loop.trips) (h : valid L (2 * t.val)) : k13_off5 L t = ![pos L (2 * t.val)] :=
  (k13_off5_eq L t).trans (off1' (by rw [pos_valid h]; omega))
omit [FloatOps F] in
theorem off_10 (L : grid13.Coords) (t : Fin k13_t1_loop.trips) (h : valid L (2 * t.val + 1)) : k13_off10 L t = ![pos L (2 * t.val + 1)] :=
  (k13_off10_eq L t).trans (off1' (by rw [pos_valid h]; omega))

/-- Holding a 1 × 3200 window of the transposed argument, or a 3200 window of the result, by exactly its elements
    says the same whichever way the window's offsets are spelt. -/
theorem in_congr {off off' : Fin 2 → ℕ} (h : off = off') (p : ∀ a, off a + S1x3200.size a ≤ S22x1600000.size a)
    (p' : ∀ a, off' a + S1x3200.size a ≤ S22x1600000.size a) (f : Buf (Elt F) ((xtW).view.loc (thr d L))) :
    (((xtW).slice (Rect.unit (s := S22x1600000) off S1x3200.size p) (fun _ => rfl)).view.loc (thr d L)
        ↦[((xtW).slice (Rect.unit (s := S22x1600000) off S1x3200.size p) (fun _ => rfl)).view.set]{fullShare} f : sProp 𝕄)
      = (((xtW).slice (Rect.unit (s := S22x1600000) off' S1x3200.size p') (fun _ => rfl)).view.loc (thr d L)
        ↦[((xtW).slice (Rect.unit (s := S22x1600000) off' S1x3200.size p') (fun _ => rfl)).view.set]{fullShare} f) := by
  subst h; rfl
theorem out_congr {off off' : Fin 1 → ℕ} (h : off = off') (p : ∀ a, off a + S3200.size a ≤ S1600000.size a)
    (p' : ∀ a, off' a + S3200.size a ≤ S1600000.size a) (f : Buf (Elt F) ((oW).view.loc (thr d L))) :
    (((oW).slice (Rect.unit (s := S1600000) off S3200.size p) (fun _ => rfl)).view.loc (thr d L)
        ↦[((oW).slice (Rect.unit (s := S1600000) off S3200.size p) (fun _ => rfl)).view.set]{fullShare} f : sProp 𝕄)
      = (((oW).slice (Rect.unit (s := S1600000) off' S3200.size p') (fun _ => rfl)).view.loc (thr d L)
        ↦[((oW).slice (Rect.unit (s := S1600000) off' S3200.size p') (fun _ => rfl)).view.set]{fullShare} f) := by
  subst h; rfl

/-! The printed conditions, as facts about the trip and the tile. -/

omit [FloatOps F] in
theorem trips1 : k13_t1_loop.trips = 8 := by decide
omit [FloatOps F] in
theorem cond1_iff : ∀ (t : Fin k13_t1_loop.trips), k13_cond1 t = 1#1 ↔ 1 ≤ t.val := by decide +kernel
omit [FloatOps F] in
theorem cond2_iff : ∀ (L : grid13.Coords) (t : Fin k13_t1_loop.trips), k13_cond2 L t = 1#1 := by decide +kernel
omit [FloatOps F] in
theorem cond3_iff : ∀ (L : grid13.Coords) (t : Fin k13_t1_loop.trips), k13_cond3 L t = 1#1 ↔ t.val ≤ 6 := by decide +kernel
omit [FloatOps F] in
theorem cond4_iff : ∀ (t : Fin k13_t1_loop.trips), k13_cond4 t = 1#1 ↔ 1 ≤ t.val := by decide +kernel
omit [FloatOps F] in
theorem cond5_iff : ∀ (L : grid13.Coords) (t : Fin k13_t1_loop.trips), k13_cond5 L t = 1#1 ↔ (t.val ≤ 6 ∨ big L) := by decide +kernel
omit [FloatOps F] in
theorem cond6_iff : ∀ (L : grid13.Coords) (t : Fin k13_t1_loop.trips), k13_cond6 L t = 1#1 ↔ (t.val ≤ 5 ∨ (t.val = 6 ∧ big L)) := by decide +kernel
omit [FloatOps F] in
theorem cond7_iff : ∀ (L : grid13.Coords), k13_cond7 L = 1#1 := by decide +kernel
omit [FloatOps F] in
theorem cond8_iff : ∀ (L : grid13.Coords), k13_cond8 L = 1#1 ↔ big L := by decide +kernel

variable (O : CellTallies nD τ sig (HIx 22)) (W : Waits sig (HIx 22))
variable (fx : Buf (Elt F) ((xtW).view.loc (thr d L)))

abbrev NN : ℕ := 102400

/-- The 3200-element window of a flat staging buffer that a piece is written out from. -/
abbrev stg (a : Memref sig .scVector .vmem S25600 .f32) : Memref sig .scVector .vmem S3200 .f32 :=
  a.slice (Rect.unit (s := S25600) ![0] S3200.size inb_S25600_S3200_0) (fun _ => rfl)

/-- Piece `n` of the argument row held by exactly its elements, at the argument's contents; piece `n` of the result
    held by exactly its elements, at some contents. -/
abbrev xtPiece (n : ℕ) : sProp 𝕄 := (inM L n).view.loc (thr d L) ↦[(inM L n).view.set]{fullShare} fx
abbrev oPiece (n : ℕ) : sProp 𝕄 := iprop(∃ f, (outM L n).view.loc (thr d L) ↦[(outM L n).view.set]{fullShare} f)

/-- The lane-copy loop of a slot: the staging row keeps its contents, the flat staging buffer holds some contents. -/
def laneInv0 (g4 : Buf (Elt F) ((a4).view.loc (thr d L))) (_ : ℕ) (_ : PUnit) : sProp 𝕄 :=
  iprop(((a4).view.loc (thr d L) ↦{fullShare} g4) ∗ (∃ g, (a6).view.loc (thr d L) ↦{fullShare} g))
def laneInv1 (g5 : Buf (Elt F) ((a5).view.loc (thr d L))) (_ : ℕ) (_ : PUnit) : sProp 𝕄 :=
  iprop(((a5).view.loc (thr d L) ↦{fullShare} g5) ∗ (∃ g, (a7).view.loc (thr d L) ↦{fullShare} g))

/-- A fetch slot before trip work on piece `n`: the piece's fetch in flight (it will hand back the staging row at some
    contents, and the piece), or, when there is no such piece, the slot idle. -/
def inSlot (a : Memref sig .scVector .vmem S8x3200 .f32) (sm : DmaSem sig) (n : ℕ) : sProp 𝕄 :=
  if valid L n then
    iprop(∃ g, Transfers.Flight countersEmb (thr d L) (SemLoc.dma sm) (default : HIx 22) NN
      iprop((a.view.loc (thr d L) ↦{fullShare} g) ∗ xtPiece d L fx n))
  else iprop((∃ g, a.view.loc (thr d L) ↦{fullShare} g) ∗ semVal (thr d L, SemLoc.dma sm) 0)

/-- A write-out slot before trip work on piece `m`: piece `m - 2`'s write-out in flight (it will hand back that piece
    of the result at some contents, and the staging window), the rest of the staging buffer beside it; or idle. -/
def outSlot (a : Memref sig .scVector .vmem S25600 .f32) (sm : DmaSem sig) (m : ℕ) : sProp 𝕄 :=
  if 2 ≤ m ∧ valid L (m - 2) then
    iprop(∃ g, Transfers.Flight countersEmb (thr d L) (SemLoc.dma sm) (default : HIx 22) NN
        iprop(oPiece d L (m - 2) ∗ ((stg a).view.loc (thr d L) ↦[(stg a).view.set]{fullShare} g))
      ∗ (a.view.loc (thr d L) ↦[Finset.univ \ (stg a).view.set]{fullShare} g))
  else iprop((∃ g, a.view.loc (thr d L) ↦{fullShare} g) ∗ semVal (thr d L, SemLoc.dma sm) 0)

/-- Piece `n` when it exists, nothing otherwise. -/
def xP (n : ℕ) : sProp 𝕄 := if valid L n then xtPiece d L fx n else iprop(emp)
def oP (n : ℕ) : sProp 𝕄 := if valid L n then oPiece d L n else iprop(emp)

/-- What the tile holds outside the slots before trip `t`: every piece of the argument row but those being fetched
    (`2t`, `2t + 1`), every piece of the result but those being written out (`2t - 2`, `2t - 1`). -/
def xSet (t : ℕ) : Finset ℕ := (Finset.range 18).filter fun n => n ≠ 2 * t ∧ n ≠ 2 * t + 1
def oSet (t : ℕ) : Finset ℕ := (Finset.range 18).filter fun n => n + 2 ≠ 2 * t ∧ n + 2 ≠ 2 * t + 1

def inv (t : ℕ) (_ : PUnit) : sProp 𝕄 :=
  iprop(Transfers.MayWaits (thr d L) (none : HIx 22) O
    ∗ (∃ W', ⌜∀ p ∈ W', p ∈ W ∨ p.2 = none⌝ ∗ owes (thr d L) O W')
    ∗ bigSep (xSet t) (xP d L fx) ∗ bigSep (oSet t) (oP d L)
    ∗ inSlot d L fx a4 cc13_scratch4.sem (2 * t) ∗ outSlot d L a6 cc13_scratch6.sem (2 * t)
    ∗ inSlot d L fx a5 cc13_scratch5.sem (2 * t + 1) ∗ outSlot d L a7 cc13_scratch7.sem (2 * t + 1))

omit [FloatOps F] in
theorem two_out {Φ : ℕ → sProp 𝕄} {s : Finset ℕ} {a b : ℕ} (ha : a ∈ s) (hb : b ∈ s) (hab : a ≠ b) :
    bigSep s Φ = iprop(Φ a ∗ Φ b ∗ bigSep ((s.erase a).erase b) Φ) := by
  rw [SparseCore.bigSep_erase' ha, SparseCore.bigSep_erase' (Finset.mem_erase.mpr ⟨fun e => hab e.symm, hb⟩)]

omit [FloatOps F] in
theorem range18_split : (Finset.range 18) = insert 0 (insert 1 (xSet 0)) := by decide

theorem xRange_split (v0 : valid L 0) (v1 : valid L 1) :
    bigSep (Finset.range 18) (xP d L fx) = iprop(xtPiece d L fx 0 ∗ xtPiece d L fx 1 ∗ bigSep (xSet 0) (xP d L fx)) := by
  rw [range18_split, SparseCore.bigSep_insert' (by decide), SparseCore.bigSep_insert' (by decide)]
  unfold xP; rw [if_pos v0, if_pos v1]
omit [FloatOps F] in
theorem oSet_zero : oSet 0 = Finset.range 18 := by decide

theorem inSlot_pos {a : Memref sig .scVector .vmem S8x3200 .f32} {sm : DmaSem sig} {n : ℕ} (v : valid L n) :
    inSlot d L fx a sm n = iprop(∃ g, Transfers.Flight countersEmb (thr d L) (SemLoc.dma sm) (default : HIx 22) NN
      iprop((a.view.loc (thr d L) ↦{fullShare} g) ∗ xtPiece d L fx n)) := by unfold inSlot; rw [if_pos v]
theorem inSlot_neg {a : Memref sig .scVector .vmem S8x3200 .f32} {sm : DmaSem sig} {n : ℕ} (v : ¬ valid L n) :
    inSlot d L fx a sm n = iprop((∃ g, a.view.loc (thr d L) ↦{fullShare} g) ∗ semVal (thr d L, SemLoc.dma sm) 0) := by
  unfold inSlot; rw [if_neg v]
theorem outSlot_pos {a : Memref sig .scVector .vmem S25600 .f32} {sm : DmaSem sig} {m : ℕ} (h : 2 ≤ m ∧ valid L (m - 2)) :
    outSlot (F := F) d L a sm m = iprop(∃ g, Transfers.Flight countersEmb (thr d L) (SemLoc.dma sm) (default : HIx 22) NN
        iprop(oPiece (F := F) d L (m - 2) ∗ ((stg a).view.loc (thr d L) ↦[(stg a).view.set]{fullShare} g))
      ∗ (a.view.loc (thr d L) ↦[Finset.univ \ (stg a).view.set]{fullShare} g)) := by unfold outSlot; rw [if_pos h]
theorem outSlot_neg {a : Memref sig .scVector .vmem S25600 .f32} {sm : DmaSem sig} {m : ℕ} (h : ¬ (2 ≤ m ∧ valid L (m - 2))) :
    outSlot (F := F) d L a sm m = iprop((∃ g, a.view.loc (thr d L) ↦{fullShare} g) ∗ semVal (thr d L, SemLoc.dma sm) 0) := by
  unfold outSlot; rw [if_neg h]

/-- A fetch in flight, its source window spelt by any offsets equal to piece `n`'s, fills the fetch slot for `n`. -/
theorem fl_in {off : Fin 2 → ℕ} {n : ℕ} (h : off = ![13, pos L n]) (p : ∀ a, off a + S1x3200.size a ≤ S22x1600000.size a) (v : valid L n)
    (a : Memref sig .scVector .vmem S8x3200 .f32) (sm : DmaSem sig) :
    (iprop(∃ g, Transfers.Flight countersEmb (thr d L) (SemLoc.dma sm) (default : HIx 22) NN
        iprop((a.view.loc (thr d L) ↦{fullShare} g)
          ∗ (((xtW).slice (Rect.unit (s := S22x1600000) off S1x3200.size p) (fun _ => rfl)).view.loc (thr d L)
              ↦[((xtW).slice (Rect.unit (s := S22x1600000) off S1x3200.size p) (fun _ => rfl)).view.set]{fullShare} fx))) : sProp 𝕄)
      ⊢ inSlot d L fx a sm n := by
  rw [inSlot_pos d L fx v]
  iintro ⟨%g, H⟩
  have hD : (iprop((a.view.loc (thr d L) ↦{fullShare} g)
          ∗ (((xtW).slice (Rect.unit (s := S22x1600000) off S1x3200.size p) (fun _ => rfl)).view.loc (thr d L)
              ↦[((xtW).slice (Rect.unit (s := S22x1600000) off S1x3200.size p) (fun _ => rfl)).view.set]{fullShare} fx)) : sProp 𝕄)
      ⊢ iprop((a.view.loc (thr d L) ↦{fullShare} g) ∗ xtPiece d L fx n) := by
    iintro ⟨H1, H2⟩
    isplitl [H1]; · iexact H1
    iapply (Entails.of_eq (in_congr d L h p (in_inb L n) fx)); iexact H2
  iexists g
  iapply (Transfers.Flight_mono countersEmb (thr d L) hD); iexact H

/-- A write-out in flight, its destination window spelt by any offsets equal to piece `n`'s, with the rest of the
    staging buffer, fills the write-out slot for `n + 2`. -/
theorem fl_out {off : Fin 1 → ℕ} {n : ℕ} (h : off = ![pos L n]) (p : ∀ a, off a + S3200.size a ≤ S1600000.size a) (v : valid L n)
    (a : Memref sig .scVector .vmem S25600 .f32) (sm : DmaSem sig) :
    (iprop(∃ (f : Buf (Elt F) ((oW).view.loc (thr d L))) (g : Buf (Elt F) (a.view.loc (thr d L))), Transfers.Flight countersEmb (thr d L) (SemLoc.dma sm) (default : HIx 22) NN
        iprop((((oW).slice (Rect.unit (s := S1600000) off S3200.size p) (fun _ => rfl)).view.loc (thr d L)
              ↦[((oW).slice (Rect.unit (s := S1600000) off S3200.size p) (fun _ => rfl)).view.set]{fullShare} f)
          ∗ ((stg a).view.loc (thr d L) ↦[(stg a).view.set]{fullShare} g))
        ∗ (a.view.loc (thr d L) ↦[Finset.univ \ (stg a).view.set]{fullShare} g)) : sProp 𝕄)
      ⊢ outSlot (F := F) d L a sm (n + 2) := by
  rw [outSlot_pos (F := F) d L (m := n + 2) ⟨by omega, by simpa using v⟩]
  iintro ⟨%f, %g, H, R⟩
  have hD : (iprop((((oW).slice (Rect.unit (s := S1600000) off S3200.size p) (fun _ => rfl)).view.loc (thr d L)
              ↦[((oW).slice (Rect.unit (s := S1600000) off S3200.size p) (fun _ => rfl)).view.set]{fullShare} f)
          ∗ ((stg a).view.loc (thr d L) ↦[(stg a).view.set]{fullShare} g)) : sProp 𝕄)
      ⊢ iprop(oPiece (F := F) d L (n + 2 - 2) ∗ ((stg a).view.loc (thr d L) ↦[(stg a).view.set]{fullShare} g)) := by
    rw [Nat.add_sub_cancel]
    iintro ⟨H1, H2⟩
    isplitl [H1]
    · iexists f; iapply (Entails.of_eq (out_congr d L h p (out_inb L n) f)); iexact H1
    · iexact H2
  iexists g
  isplitl [H]
  · iapply (Transfers.Flight_mono countersEmb (thr d L) hD); iexact H
  · iexact R

/-! The pieces outside the slots, from one trip to the next. -/
def xCore (k : ℕ) : Finset ℕ := (Finset.range 18).filter fun n => n ≠ 2 * k ∧ n ≠ 2 * k + 1 ∧ n ≠ 2 * k + 2 ∧ n ≠ 2 * k + 3
def oCore (k : ℕ) : Finset ℕ := (Finset.range 18).filter fun n => n + 2 ≠ 2 * k ∧ n + 2 ≠ 2 * k + 1 ∧ n ≠ 2 * k ∧ n ≠ 2 * k + 1

omit [FloatOps F] in
theorem xSet_out (Φ : ℕ → sProp 𝕄) (k : ℕ) (hk : k < 8) : bigSep (xSet k) Φ = iprop(Φ (2 * k + 2) ∗ Φ (2 * k + 3) ∗ bigSep (xCore k) Φ) := by
  have e : ((xSet k).erase (2 * k + 2)).erase (2 * k + 3) = xCore k := by
    ext n; simp only [xSet, xCore, Finset.mem_erase, Finset.mem_filter, Finset.mem_range]; omega
  rw [← e]; exact two_out (by simp only [xSet, Finset.mem_filter, Finset.mem_range]; omega) (by simp only [xSet, Finset.mem_filter, Finset.mem_range]; omega) (by omega)
omit [FloatOps F] in
theorem xSet_in (Φ : ℕ → sProp 𝕄) (k : ℕ) (hk : k < 8) : bigSep (xSet (k + 1)) Φ = iprop(Φ (2 * k) ∗ Φ (2 * k + 1) ∗ bigSep (xCore k) Φ) := by
  have e : ((xSet (k + 1)).erase (2 * k)).erase (2 * k + 1) = xCore k := by
    ext n; simp only [xSet, xCore, Finset.mem_erase, Finset.mem_filter, Finset.mem_range]; omega
  rw [← e]; exact two_out (by simp only [xSet, Finset.mem_filter, Finset.mem_range]; omega) (by simp only [xSet, Finset.mem_filter, Finset.mem_range]; omega) (by omega)
omit [FloatOps F] in
theorem oSet_out (Φ : ℕ → sProp 𝕄) (k : ℕ) (hk : k < 8) : bigSep (oSet k) Φ = iprop(Φ (2 * k) ∗ Φ (2 * k + 1) ∗ bigSep (oCore k) Φ) := by
  have e : ((oSet k).erase (2 * k)).erase (2 * k + 1) = oCore k := by
    ext n; simp only [oSet, oCore, Finset.mem_erase, Finset.mem_filter, Finset.mem_range]; omega
  rw [← e]; exact two_out (by simp only [oSet, Finset.mem_filter, Finset.mem_range]; omega) (by simp only [oSet, Finset.mem_filter, Finset.mem_range]; omega) (by omega)
omit [FloatOps F] in
theorem oSet_in (Φ : ℕ → sProp 𝕄) (k : ℕ) (hk : k < 8) (hk1 : 1 ≤ k) :
    bigSep (oSet (k + 1)) Φ = iprop(Φ (2 * k - 2) ∗ Φ (2 * k - 1) ∗ bigSep (oCore k) Φ) := by
  have e : ((oSet (k + 1)).erase (2 * k - 2)).erase (2 * k - 1) = oCore k := by
    ext n; simp only [oSet, oCore, Finset.mem_erase, Finset.mem_filter, Finset.mem_range]; omega
  rw [← e]; exact two_out (by simp only [oSet, Finset.mem_filter, Finset.mem_range]; omega) (by simp only [oSet, Finset.mem_filter, Finset.mem_range]; omega) (by omega)

theorem xP_pos {n : ℕ} (v : valid L n) : xP d L fx n = xtPiece d L fx n := if_pos v
theorem oP_pos {n : ℕ} (v : valid L n) : oP (F := F) d L n = oPiece (F := F) d L n := if_pos v
theorem xP_neg {n : ℕ} (v : ¬ valid L n) : xP d L fx n = iprop(emp) := if_neg v
theorem oP_neg {n : ℕ} (v : ¬ valid L n) : oP (F := F) d L n = iprop(emp) := if_neg v

/-- Piece `n` of the result at its final contents: row 13 of the transposed argument. -/
def oQ (n : ℕ) : sProp 𝕄 :=
  if valid L n then (outM L n).view.loc (thr d L) ↦[(outM L n).view.set]{fullShare} (Cert.Spec.row 13 fx) else iprop(emp)

/-- What a tile is handed for the call: its pieces of row 13 of the transposed argument, at the argument's contents, and
    its pieces of the result at some contents. What it hands back: the same pieces of the argument, and its pieces of
    the result holding the row. -/
def goRes : sProp 𝕄 := iprop(bigSep (Finset.range 18) (xP d L fx) ∗ bigSep (Finset.range 18) (oP (F := F) d L))
def tdRes : sProp 𝕄 := iprop(bigSep (Finset.range 18) (xP d L fx) ∗ bigSep (Finset.range 18) (oQ d L fx))

end Tile

end Cert.Proof.TileK13

end
-- ==== Proof.TileK14Defs.lean ====
/-
  One vector subcore's task of copy kernel 14 (counting from 0): definitions. The task moves its pieces of row 14 of the
  transposed argument (pieces of 3200 consecutive elements, piece number 2·s + c + 32·n for the subcore (c, s) and
  n = 0, 1, … while that number is below 500) into the flat result: each piece is fetched into a staging row, copied
  16 lanes at a time into a flat staging buffer, and written out, two pieces in flight at a time. Here: the pieces as
  memrefs, the program's own spellings of them, the printed conditions as facts about the trip, the two slots' states
  between trips, and what the tile holds outside the slots.
-/
import proofs.«206869_g37898791420194_cont_8to1_b_558_20_alg».proof.Defs
import Idealize.ShloMosaic.Lib.SparseCore.Launch
import Idealize.ShloMosaic.Lib.StableHlo.Run
import Idealize.ShloMosaic.Lib.Pipeline.Kit
import Idealize.ShloMosaic.Lib.Tactic
import proofs.«206869_g37898791420194_cont_8to1_b_558_20_alg».proof.Proof.Gen.KernelIdeal
import proofs.«206869_g37898791420194_cont_8to1_b_558_20_alg».proof.Proof.Gen.KernelIdeal.Skeleton
import proofs.«206869_g37898791420194_cont_8to1_b_558_20_alg».proof.Proof.Spec

noncomputable section

namespace Cert.Proof.TileK14

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

abbrev ΛP : Labels := Pipeline.Sig Λ₀ (Fin 0) fun p => (pcfgs (F := F) p).Adm
abbrev K : SparseCore.Cfg τ sig (ΛP (F := F)) 22 := sc (F := F)
abbrev 𝒱₀ : Variants := Variants.none

abbrev UH : Type := URounds (GSem nD τ sig) ℕ
abbrev UU : Type := UH × Counters

local notation "𝕄" => MT nD τ sig (HIx 22) (Elt F) ℕ UU ℕ

local notation "xtW" => (Memref.whole Cert.KernelIdeal.main_v0_scv : Memref Cert.KernelIdeal.sig Kind.scVector Space.hbm Cert.KernelIdeal.S22x1600000 EltTy.f32)
local notation "oW" => (Memref.whole Cert.KernelIdeal.main_v15_scv : Memref Cert.KernelIdeal.sig Kind.scVector Space.hbm Cert.KernelIdeal.S1600000 EltTy.f32)
local notation "a4" => (Memref.whole Cert.KernelIdeal.cc14_scratch0 : Memref Cert.KernelIdeal.sig Kind.scVector Space.vmem Cert.KernelIdeal.S8x3200 EltTy.f32)
local notation "a5" => (Memref.whole Cert.KernelIdeal.cc14_scratch1 : Memref Cert.KernelIdeal.sig Kind.scVector Space.vmem Cert.KernelIdeal.S8x3200 EltTy.f32)
local notation "a6" => (Memref.whole Cert.KernelIdeal.cc14_scratch2 : Memref Cert.KernelIdeal.sig Kind.scVector Space.vmem Cert.KernelIdeal.S25600 EltTy.f32)
local notation "a7" => (Memref.whole Cert.KernelIdeal.cc14_scratch3 : Memref Cert.KernelIdeal.sig Kind.scVector Space.vmem Cert.KernelIdeal.S25600 EltTy.f32)

variable [FloatOps F]

section Tile

variable (d : Dev nD) (L : grid14.Coords)

abbrev cV (L : grid14.Coords) : Fin τ.nSC := (L 0).castLE hcore14
abbrev jV (L : grid14.Coords) : Fin τ.nSub := (L 1).castLE hsub14
abbrev thr (d : Dev nD) (L : grid14.Coords) : Thread nD τ := V d (cV L) (jV L)

/-- The tile's number 2·s + c, and whether it has sixteen pieces (numbers below 20) or fifteen. -/
abbrev wid (L : grid14.Coords) : ℕ := 2 * (L 1).val + (L 0).val
abbrev big (L : grid14.Coords) : Prop := wid L < 20

omit [FloatOps F] in
theorem wid_lt (L : grid14.Coords) : wid L < 32 := by
  have h0 : (L 0).val < 2 := (L 0).isLt
  have h1 : (L 1).val < 16 := (L 1).isLt
  unfold wid; omega

/-- Piece `n` of the tile exists: `n < 15`, or `n = 15` on a tile with sixteen pieces. It is the piece number
    `wid + 32·n < 500` of the row. -/
def valid (L : grid14.Coords) (n : ℕ) : Prop := n < 15 ∨ (n = 15 ∧ big L)
instance (L : grid14.Coords) (n : ℕ) : Decidable (valid L n) := by unfold valid big; infer_instance

omit [FloatOps F] in
theorem valid_iff (L : grid14.Coords) (n : ℕ) : valid L n ↔ wid L + 32 * n < 500 := by
  have := wid_lt L; unfold valid big; omega

/-- Where piece `n` starts in the row (clamped to the last piece of the row, so that the rectangle is in bounds for
    every `n`; for a valid piece the clamp is idle). -/
abbrev pos (L : grid14.Coords) (n : ℕ) : ℕ := 3200 * min (wid L + 32 * n) 499

omit [FloatOps F] in
theorem pos_valid {L : grid14.Coords} {n : ℕ} (h : valid L n) : pos L n = 6400 * (L 1).val + 3200 * (L 0).val + 102400 * n := by
  have := (valid_iff L n).mp h; unfold pos wid at *; omega

omit [FloatOps F] in
theorem in_inb (L : grid14.Coords) (n : ℕ) : ∀ a, (![14, pos L n] : Fin 2 → ℕ) a + S1x3200.size a ≤ S22x1600000.size a := by
  intro a; fin_cases a
  · show 14 + 1 ≤ 22; omega
  · show pos L n + 3200 ≤ 1600000; unfold pos; omega
omit [FloatOps F] in
theorem out_inb (L : grid14.Coords) (n : ℕ) : ∀ a, (![pos L n] : Fin 1 → ℕ) a + S3200.size a ≤ S1600000.size a := by
  intro a; fin_cases a
  show pos L n + 3200 ≤ 1600000; unfold pos; omega

/-- Piece `n` of row 14 of the transposed argument, and piece `n` of the flat result, as memrefs of the tile. -/
abbrev inM (L : grid14.Coords) (n : ℕ) : Memref sig .scVector .hbm S1x3200 .f32 :=
  (xtW).slice (Rect.unit (s := S22x1600000) ![14, pos L n] S1x3200.size (in_inb L n)) (fun _ => rfl)
abbrev outM (L : grid14.Coords) (n : ℕ) : Memref sig .scVector .hbm S3200 .f32 :=
  (oW).slice (Rect.unit (s := S1600000) ![pos L n] S3200.size (out_inb L n)) (fun _ => rfl)

/-! The program's own slices are these pieces: by the closed forms of its offset functions. -/

omit [FloatOps F] in
theorem off2 {a b : ℕ} (h : a = b) : (![14, a] : Fin 2 → ℕ) = ![14, b] := by rw [h]
omit [FloatOps F] in
theorem off1' {a b : ℕ} (h : a = b) : (![a] : Fin 1 → ℕ) = ![b] := by rw [h]

omit [FloatOps F] in
theorem off_in0 (L : grid14.Coords) (h : valid L 0) : k14_off1 L 0#32 = ![14, pos L 0] :=
  (k14_off1_eq L 0).trans (off2 (by rw [pos_valid h]; simp))
omit [FloatOps F] in
theorem off_in1 (L : grid14.Coords) (h : valid L 1) : k14_off1 L 32#32 = ![14, pos L 1] :=
  (k14_off1_eq L 1).trans (off2 (by rw [pos_valid h]; simp))
omit [FloatOps F] in
theorem off_6 (L : grid14.Coords) (t : Fin k14_t1_loop.trips) (h : valid L (2 * t.val + 2)) : k14_off6 L t = ![14, pos L (2 * t.val + 2)] :=
  (k14_off6_eq L t).trans (off2 (by rw [pos_valid h]; omega))
omit [FloatOps F] in
theorem off_11 (L : grid14.Coords) (t : Fin k14_t1_loop.trips) (h : valid L (2 * t.val + 3)) : k14_off11 L t = ![14, pos L (2 * t.val + 3)] :=
  (k14_off11_eq L t).trans (off2 (by rw [pos_valid h]; omega))
omit [FloatOps F] in
theorem off_5 (L : grid14.Coords) (t : Fin k14_t1_loop.trips) (h : valid L (2 * t.val)) : k14_off5 L t = ![pos L (2 * t.val)] :=
  (k14_off5_eq L t).trans (off1' (by rw [pos_valid h]; omega))
omit [FloatOps F] in
theorem off_10 (L : grid14.Coords) (t : Fin k14_t1_loop.trips) (h : valid L (2 * t.val + 1)) : k14_off10 L t = ![pos L (2 * t.val + 1)] :=
  (k14_off10_eq L t).trans (off1' (by rw [pos_valid h]; omega))

/-- Holding a 1 × 3200 window of the transposed argument, or a 3200 window of the result, by exactly its elements
    says the same whichever way the window's offsets are spelt. -/
theorem in_congr {off off' : Fin 2 → ℕ} (h : off = off') (p : ∀ a, off a + S1x3200.size a ≤ S22x1600000.size a)
    (p' : ∀ a, off' a + S1x3200.size a ≤ S22x1600000.size a) (f : Buf (Elt F) ((xtW).view.loc (thr d L))) :
    (((xtW).slice (Rect.unit (s := S22x1600000) off S1x3200.size p) (fun _ => rfl)).view.loc (thr d L)
        ↦[((xtW).slice (Rect.unit (s := S22x1600000) off S1x3200.size p) (fun _ => rfl)).view.set]{fullShare} f : sProp 𝕄)
      = (((xtW).slice (Rect.unit (s := S22x1600000) off' S1x3200.size p') (fun _ => rfl)).view.loc (thr d L)
        ↦[((xtW).slice (Rect.unit (s := S22x1600000) off' S1x3200.size p') (fun _ => rfl)).view.set]{fullShare} f) := by
  subst h; rfl
theorem out_congr {off off' : Fin 1 → ℕ} (h : off = off') (p : ∀ a, off a + S3200.size a ≤ S1600000.size a)
    (p' : ∀ a, off' a + S3200.size a ≤ S1600000.size a) (f : Buf (Elt F) ((oW).view.loc (thr d L))) :
    (((oW).slice (Rect.unit (s := S1600000) off S3200.size p) (fun _ => rfl)).view.loc (thr d L)
        ↦[((oW).slice (Rect.unit (s := S1600000) off S3200.size p) (fun _ => rfl)).view.set]{fullShare} f : sProp 𝕄)
      = (((oW).slice (Rect.unit (s := S1600000) off' S3200.size p') (fun _ => rfl)).view.loc (thr d L)
        ↦[((oW).slice (Rect.unit (s := S1600000) off' S3200.size p') (fun _ => rfl)).view.set]{fullShare} f) := by
  subst h; rfl

/-! The printed conditions, as facts about the trip and the tile. -/

omit [FloatOps F] in
theorem trips1 : k14_t1_loop.trips = 8 := by decide
omit [FloatOps F] in
theorem cond1_iff : ∀ (t : Fin k14_t1_loop.trips), k14_cond1 t = 1#1 ↔ 1 ≤ t.val := by decide +kernel
omit [FloatOps F] in
theorem cond2_iff : ∀ (L : grid14.Coords) (t : Fin k14_t1_loop.trips), k14_cond2 L t = 1#1 := by decide +kernel
omit [FloatOps F] in
theorem cond3_iff : ∀ (L : grid14.Coords) (t : Fin k14_t1_loop.trips), k14_cond3 L t = 1#1 ↔ t.val ≤ 6 := by decide +kernel
omit [FloatOps F] in
theorem cond4_iff : ∀ (t : Fin k14_t1_loop.trips), k14_cond4 t = 1#1 ↔ 1 ≤ t.val := by decide +kernel
omit [FloatOps F] in
theorem cond5_iff : ∀ (L : grid14.Coords) (t : Fin k14_t1_loop.trips), k14_cond5 L t = 1#1 ↔ (t.val ≤ 6 ∨ big L) := by decide +kernel
omit [FloatOps F] in
theorem cond6_iff : ∀ (L : grid14.Coords) (t : Fin k14_t1_loop.trips), k14_cond6 L t = 1#1 ↔ (t.val ≤ 5 ∨ (t.val = 6 ∧ big L)) := by decide +kernel
omit [FloatOps F] in
theorem cond7_iff : ∀ (L : grid14.Coords), k14_cond7 L = 1#1 := by decide +kernel
omit [FloatOps F] in
theorem cond8_iff : ∀ (L : grid14.Coords), k14_cond8 L = 1#1 ↔ big L := by decide +kernel

variable (O : CellTallies nD τ sig (HIx 22)) (W : Waits sig (HIx 22))
variable (fx : Buf (Elt F) ((xtW).view.loc (thr d L)))

abbrev NN : ℕ := 102400

/-- The 3200-element window of a flat staging buffer that a piece is written out from. -/
abbrev stg (a : Memref sig .scVector .vmem S25600 .f32) : Memref sig .scVector .vmem S3200 .f32 :=
  a.slice (Rect.unit (s := S25600) ![0] S3200.size inb_S25600_S3200_0) (fun _ => rfl)

/-- Piece `n` of the argument row held by exactly its elements, at the argument's contents; piece `n` of the result
    held by exactly its elements, at some contents. -/
abbrev xtPiece (n : ℕ) : sProp 𝕄 := (inM L n).view.loc (thr d L) ↦[(inM L n).view.set]{fullShare} fx
abbrev oPiece (n : ℕ) : sProp 𝕄 := iprop(∃ f, (outM L n).view.loc (thr d L) ↦[(outM L n).view.set]{fullShare} f)

/-- The lane-copy loop of a slot: the staging row keeps its contents, the flat staging buffer holds some contents. -/
def laneInv0 (g4 : Buf (Elt F) ((a4).view.loc (thr d L))) (_ : ℕ) (_ : PUnit) : sProp 𝕄 :=
  iprop(((a4).view.loc (thr d L) ↦{fullShare} g4) ∗ (∃ g, (a6).view.loc (thr d L) ↦{fullShare} g))
def laneInv1 (g5 : Buf (Elt F) ((a5).view.loc (thr d L))) (_ : ℕ) (_ : PUnit) : sProp 𝕄 :=
  iprop(((a5).view.loc (thr d L) ↦{fullShare} g5) ∗ (∃ g, (a7).view.loc (thr d L) ↦{fullShare} g))

/-- A fetch slot before trip work on piece `n`: the piece's fetch in flight (it will hand back the staging row at some
    contents, and the piece), or, when there is no such piece, the slot idle. -/
def inSlot (a : Memref sig .scVector .vmem S8x3200 .f32) (sm : DmaSem sig) (n : ℕ) : sProp 𝕄 :=
  if valid L n then
    iprop(∃ g, Transfers.Flight countersEmb (thr d L) (SemLoc.dma sm) (default : HIx 22) NN
      iprop((a.view.loc (thr d L) ↦{fullShare} g) ∗ xtPiece d L fx n))
  else iprop((∃ g, a.view.loc (thr d L) ↦{fullShare} g) ∗ semVal (thr d L, SemLoc.dma sm) 0)

/-- A write-out slot before trip work on piece `m`: piece `m - 2`'s write-out in flight (it will hand back that piece
    of the result at some contents, and the staging window), the rest of the staging buffer beside it; or idle. -/
def outSlot (a : Memref sig .scVector .vmem S25600 .f32) (sm : DmaSem sig) (m : ℕ) : sProp 𝕄 :=
  if 2 ≤ m ∧ valid L (m - 2) then
    iprop(∃ g, Transfers.Flight countersEmb (thr d L) (SemLoc.dma sm) (default : HIx 22) NN
        iprop(oPiece d L (m - 2) ∗ ((stg a).view.loc (thr d L) ↦[(stg a).view.set]{fullShare} g))
      ∗ (a.view.loc (thr d L) ↦[Finset.univ \ (stg a).view.set]{fullShare} g))
  else iprop((∃ g, a.view.loc (thr d L) ↦{fullShare} g) ∗ semVal (thr d L, SemLoc.dma sm) 0)

/-- Piece `n` when it exists, nothing otherwise. -/
def xP (n : ℕ) : sProp 𝕄 := if valid L n then xtPiece d L fx n else iprop(emp)
def oP (n : ℕ) : sProp 𝕄 := if valid L n then oPiece d L n else iprop(emp)

/-- What the tile holds outside the slots before trip `t`: every piece of the argument row but those being fetched
    (`2t`, `2t + 1`), every piece of the result but those being written out (`2t - 2`, `2t - 1`). -/
def xSet (t : ℕ) : Finset ℕ := (Finset.range 18).filter fun n => n ≠ 2 * t ∧ n ≠ 2 * t + 1
def oSet (t : ℕ) : Finset ℕ := (Finset.range 18).filter fun n => n + 2 ≠ 2 * t ∧ n + 2 ≠ 2 * t + 1

def inv (t : ℕ) (_ : PUnit) : sProp 𝕄 :=
  iprop(Transfers.MayWaits (thr d L) (none : HIx 22) O
    ∗ (∃ W', ⌜∀ p ∈ W', p ∈ W ∨ p.2 = none⌝ ∗ owes (thr d L) O W')
    ∗ bigSep (xSet t) (xP d L fx) ∗ bigSep (oSet t) (oP d L)
    ∗ inSlot d L fx a4 cc14_scratch4.sem (2 * t) ∗ outSlot d L a6 cc14_scratch6.sem (2 * t)
    ∗ inSlot d L fx a5 cc14_scratch5.sem (2 * t + 1) ∗ outSlot d L a7 cc14_scratch7.sem (2 * t + 1))

omit [FloatOps F] in
theorem two_out {Φ : ℕ → sProp 𝕄} {s : Finset ℕ} {a b : ℕ} (ha : a ∈ s) (hb : b ∈ s) (hab : a ≠ b) :
    bigSep s Φ = iprop(Φ a ∗ Φ b ∗ bigSep ((s.erase a).erase b) Φ) := by
  rw [SparseCore.bigSep_erase' ha, SparseCore.bigSep_erase' (Finset.mem_erase.mpr ⟨fun e => hab e.symm, hb⟩)]

omit [FloatOps F] in
theorem range18_split : (Finset.range 18) = insert 0 (insert 1 (xSet 0)) := by decide

theorem xRange_split (v0 : valid L 0) (v1 : valid L 1) :
    bigSep (Finset.range 18) (xP d L fx) = iprop(xtPiece d L fx 0 ∗ xtPiece d L fx 1 ∗ bigSep (xSet 0) (xP d L fx)) := by
  rw [range18_split, SparseCore.bigSep_insert' (by decide), SparseCore.bigSep_insert' (by decide)]
  unfold xP; rw [if_pos v0, if_pos v1]
omit [FloatOps F] in
theorem oSet_zero : oSet 0 = Finset.range 18 := by decide

theorem inSlot_pos {a : Memref sig .scVector .vmem S8x3200 .f32} {sm : DmaSem sig} {n : ℕ} (v : valid L n) :
    inSlot d L fx a sm n = iprop(∃ g, Transfers.Flight countersEmb (thr d L) (SemLoc.dma sm) (default : HIx 22) NN
      iprop((a.view.loc (thr d L) ↦{fullShare} g) ∗ xtPiece d L fx n)) := by unfold inSlot; rw [if_pos v]
theorem inSlot_neg {a : Memref sig .scVector .vmem S8x3200 .f32} {sm : DmaSem sig} {n : ℕ} (v : ¬ valid L n) :
    inSlot d L fx a sm n = iprop((∃ g, a.view.loc (thr d L) ↦{fullShare} g) ∗ semVal (thr d L, SemLoc.dma sm) 0) := by
  unfold inSlot; rw [if_neg v]
theorem outSlot_pos {a : Memref sig .scVector .vmem S25600 .f32} {sm : DmaSem sig} {m : ℕ} (h : 2 ≤ m ∧ valid L (m - 2)) :
    outSlot (F := F) d L a sm m = iprop(∃ g, Transfers.Flight countersEmb (thr d L) (SemLoc.dma sm) (default : HIx 22) NN
        iprop(oPiece (F := F) d L (m - 2) ∗ ((stg a).view.loc (thr d L) ↦[(stg a).view.set]{fullShare} g))
      ∗ (a.view.loc (thr d L) ↦[Finset.univ \ (stg a).view.set]{fullShare} g)) := by unfold outSlot; rw [if_pos h]
theorem outSlot_neg {a : Memref sig .scVector .vmem S25600 .f32} {sm : DmaSem sig} {m : ℕ} (h : ¬ (2 ≤ m ∧ valid L (m - 2))) :
    outSlot (F := F) d L a sm m = iprop((∃ g, a.view.loc (thr d L) ↦{fullShare} g) ∗ semVal (thr d L, SemLoc.dma sm) 0) := by
  unfold outSlot; rw [if_neg h]

/-- A fetch in flight, its source window spelt by any offsets equal to piece `n`'s, fills the fetch slot for `n`. -/
theorem fl_in {off : Fin 2 → ℕ} {n : ℕ} (h : off = ![14, pos L n]) (p : ∀ a, off a + S1x3200.size a ≤ S22x1600000.size a) (v : valid L n)
    (a : Memref sig .scVector .vmem S8x3200 .f32) (sm : DmaSem sig) :
    (iprop(∃ g, Transfers.Flight countersEmb (thr d L) (SemLoc.dma sm) (default : HIx 22) NN
        iprop((a.view.loc (thr d L) ↦{fullShare} g)
          ∗ (((xtW).slice (Rect.unit (s := S22x1600000) off S1x3200.size p) (fun _ => rfl)).view.loc (thr d L)
              ↦[((xtW).slice (Rect.unit (s := S22x1600000) off S1x3200.size p) (fun _ => rfl)).view.set]{fullShare} fx))) : sProp 𝕄)
      ⊢ inSlot d L fx a sm n := by
  rw [inSlot_pos d L fx v]
  iintro ⟨%g, H⟩
  have hD : (iprop((a.view.loc (thr d L) ↦{fullShare} g)
          ∗ (((xtW).slice (Rect.unit (s := S22x1600000) off S1x3200.size p) (fun _ => rfl)).view.loc (thr d L)
              ↦[((xtW).slice (Rect.unit (s := S22x1600000) off S1x3200.size p) (fun _ => rfl)).view.set]{fullShare} fx)) : sProp 𝕄)
      ⊢ iprop((a.view.loc (thr d L) ↦{fullShare} g) ∗ xtPiece d L fx n) := by
    iintro ⟨H1, H2⟩
    isplitl [H1]; · iexact H1
    iapply (Entails.of_eq (in_congr d L h p (in_inb L n) fx)); iexact H2
  iexists g
  iapply (Transfers.Flight_mono countersEmb (thr d L) hD); iexact H

/-- A write-out in flight, its destination window spelt by any offsets equal to piece `n`'s, with the rest of the
    staging buffer, fills the write-out slot for `n + 2`. -/
theorem fl_out {off : Fin 1 → ℕ} {n : ℕ} (h : off = ![pos L n]) (p : ∀ a, off a + S3200.size a ≤ S1600000.size a) (v : valid L n)
    (a : Memref sig .scVector .vmem S25600 .f32) (sm : DmaSem sig) :
    (iprop(∃ (f : Buf (Elt F) ((oW).view.loc (thr d L))) (g : Buf (Elt F) (a.view.loc (thr d L))), Transfers.Flight countersEmb (thr d L) (SemLoc.dma sm) (default : HIx 22) NN
        iprop((((oW).slice (Rect.unit (s := S1600000) off S3200.size p) (fun _ => rfl)).view.loc (thr d L)
              ↦[((oW).slice (Rect.unit (s := S1600000) off S3200.size p) (fun _ => rfl)).view.set]{fullShare} f)
          ∗ ((stg a).view.loc (thr d L) ↦[(stg a).view.set]{fullShare} g))
        ∗ (a.view.loc (thr d L) ↦[Finset.univ \ (stg a).view.set]{fullShare} g)) : sProp 𝕄)
      ⊢ outSlot (F := F) d L a sm (n + 2) := by
  rw [outSlot_pos (F := F) d L (m := n + 2) ⟨by omega, by simpa using v⟩]
  iintro ⟨%f, %g, H, R⟩
  have hD : (iprop((((oW).slice (Rect.unit (s := S1600000) off S3200.size p) (fun _ => rfl)).view.loc (thr d L)
              ↦[((oW).slice (Rect.unit (s := S1600000) off S3200.size p) (fun _ => rfl)).view.set]{fullShare} f)
          ∗ ((stg a).view.loc (thr d L) ↦[(stg a).view.set]{fullShare} g)) : sProp 𝕄)
      ⊢ iprop(oPiece (F := F) d L (n + 2 - 2) ∗ ((stg a).view.loc (thr d L) ↦[(stg a).view.set]{fullShare} g)) := by
    rw [Nat.add_sub_cancel]
    iintro ⟨H1, H2⟩
    isplitl [H1]
    · iexists f; iapply (Entails.of_eq (out_congr d L h p (out_inb L n) f)); iexact H1
    · iexact H2
  iexists g
  isplitl [H]
  · iapply (Transfers.Flight_mono countersEmb (thr d L) hD); iexact H
  · iexact R

/-! The pieces outside the slots, from one trip to the next. -/
def xCore (k : ℕ) : Finset ℕ := (Finset.range 18).filter fun n => n ≠ 2 * k ∧ n ≠ 2 * k + 1 ∧ n ≠ 2 * k + 2 ∧ n ≠ 2 * k + 3
def oCore (k : ℕ) : Finset ℕ := (Finset.range 18).filter fun n => n + 2 ≠ 2 * k ∧ n + 2 ≠ 2 * k + 1 ∧ n ≠ 2 * k ∧ n ≠ 2 * k + 1

omit [FloatOps F] in
theorem xSet_out (Φ : ℕ → sProp 𝕄) (k : ℕ) (hk : k < 8) : bigSep (xSet k) Φ = iprop(Φ (2 * k + 2) ∗ Φ (2 * k + 3) ∗ bigSep (xCore k) Φ) := by
  have e : ((xSet k).erase (2 * k + 2)).erase (2 * k + 3) = xCore k := by
    ext n; simp only [xSet, xCore, Finset.mem_erase, Finset.mem_filter, Finset.mem_range]; omega
  rw [← e]; exact two_out (by simp only [xSet, Finset.mem_filter, Finset.mem_range]; omega) (by simp only [xSet, Finset.mem_filter, Finset.mem_range]; omega) (by omega)
omit [FloatOps F] in
theorem xSet_in (Φ : ℕ → sProp 𝕄) (k : ℕ) (hk : k < 8) : bigSep (xSet (k + 1)) Φ = iprop(Φ (2 * k) ∗ Φ (2 * k + 1) ∗ bigSep (xCore k) Φ) := by
  have e : ((xSet (k + 1)).erase (2 * k)).erase (2 * k + 1) = xCore k := by
    ext n; simp only [xSet, xCore, Finset.mem_erase, Finset.mem_filter, Finset.mem_range]; omega
  rw [← e]; exact two_out (by simp only [xSet, Finset.mem_filter, Finset.mem_range]; omega) (by simp only [xSet, Finset.mem_filter, Finset.mem_range]; omega) (by omega)
omit [FloatOps F] in
theorem oSet_out (Φ : ℕ → sProp 𝕄) (k : ℕ) (hk : k < 8) : bigSep (oSet k) Φ = iprop(Φ (2 * k) ∗ Φ (2 * k + 1) ∗ bigSep (oCore k) Φ) := by
  have e : ((oSet k).erase (2 * k)).erase (2 * k + 1) = oCore k := by
    ext n; simp only [oSet, oCore, Finset.mem_erase, Finset.mem_filter, Finset.mem_range]; omega
  rw [← e]; exact two_out (by simp only [oSet, Finset.mem_filter, Finset.mem_range]; omega) (by simp only [oSet, Finset.mem_filter, Finset.mem_range]; omega) (by omega)
omit [FloatOps F] in
theorem oSet_in (Φ : ℕ → sProp 𝕄) (k : ℕ) (hk : k < 8) (hk1 : 1 ≤ k) :
    bigSep (oSet (k + 1)) Φ = iprop(Φ (2 * k - 2) ∗ Φ (2 * k - 1) ∗ bigSep (oCore k) Φ) := by
  have e : ((oSet (k + 1)).erase (2 * k - 2)).erase (2 * k - 1) = oCore k := by
    ext n; simp only [oSet, oCore, Finset.mem_erase, Finset.mem_filter, Finset.mem_range]; omega
  rw [← e]; exact two_out (by simp only [oSet, Finset.mem_filter, Finset.mem_range]; omega) (by simp only [oSet, Finset.mem_filter, Finset.mem_range]; omega) (by omega)

theorem xP_pos {n : ℕ} (v : valid L n) : xP d L fx n = xtPiece d L fx n := if_pos v
theorem oP_pos {n : ℕ} (v : valid L n) : oP (F := F) d L n = oPiece (F := F) d L n := if_pos v
theorem xP_neg {n : ℕ} (v : ¬ valid L n) : xP d L fx n = iprop(emp) := if_neg v
theorem oP_neg {n : ℕ} (v : ¬ valid L n) : oP (F := F) d L n = iprop(emp) := if_neg v

/-- Piece `n` of the result at its final contents: row 14 of the transposed argument. -/
def oQ (n : ℕ) : sProp 𝕄 :=
  if valid L n then (outM L n).view.loc (thr d L) ↦[(outM L n).view.set]{fullShare} (Cert.Spec.row 14 fx) else iprop(emp)

/-- What a tile is handed for the call: its pieces of row 14 of the transposed argument, at the argument's contents, and
    its pieces of the result at some contents. What it hands back: the same pieces of the argument, and its pieces of
    the result holding the row. -/
def goRes : sProp 𝕄 := iprop(bigSep (Finset.range 18) (xP d L fx) ∗ bigSep (Finset.range 18) (oP (F := F) d L))
def tdRes : sProp 𝕄 := iprop(bigSep (Finset.range 18) (xP d L fx) ∗ bigSep (Finset.range 18) (oQ d L fx))

end Tile

end Cert.Proof.TileK14

end
-- ==== Proof.TileK15Defs.lean ====
/-
  One vector subcore's task of copy kernel 15 (counting from 0): definitions. The task moves its pieces of row 15 of the
  transposed argument (pieces of 3200 consecutive elements, piece number 2·s + c + 32·n for the subcore (c, s) and
  n = 0, 1, … while that number is below 500) into the flat result: each piece is fetched into a staging row, copied
  16 lanes at a time into a flat staging buffer, and written out, two pieces in flight at a time. Here: the pieces as
  memrefs, the program's own spellings of them, the printed conditions as facts about the trip, the two slots' states
  between trips, and what the tile holds outside the slots.
-/
import proofs.«206869_g37898791420194_cont_8to1_b_558_20_alg».proof.Defs
import Idealize.ShloMosaic.Lib.SparseCore.Launch
import Idealize.ShloMosaic.Lib.StableHlo.Run
import Idealize.ShloMosaic.Lib.Pipeline.Kit
import Idealize.ShloMosaic.Lib.Tactic
import proofs.«206869_g37898791420194_cont_8to1_b_558_20_alg».proof.Proof.Gen.KernelIdeal
import proofs.«206869_g37898791420194_cont_8to1_b_558_20_alg».proof.Proof.Gen.KernelIdeal.Skeleton
import proofs.«206869_g37898791420194_cont_8to1_b_558_20_alg».proof.Proof.Spec

noncomputable section

namespace Cert.Proof.TileK15

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

abbrev ΛP : Labels := Pipeline.Sig Λ₀ (Fin 0) fun p => (pcfgs (F := F) p).Adm
abbrev K : SparseCore.Cfg τ sig (ΛP (F := F)) 22 := sc (F := F)
abbrev 𝒱₀ : Variants := Variants.none

abbrev UH : Type := URounds (GSem nD τ sig) ℕ
abbrev UU : Type := UH × Counters

local notation "𝕄" => MT nD τ sig (HIx 22) (Elt F) ℕ UU ℕ

local notation "xtW" => (Memref.whole Cert.KernelIdeal.main_v0_scv : Memref Cert.KernelIdeal.sig Kind.scVector Space.hbm Cert.KernelIdeal.S22x1600000 EltTy.f32)
local notation "oW" => (Memref.whole Cert.KernelIdeal.main_v16_scv : Memref Cert.KernelIdeal.sig Kind.scVector Space.hbm Cert.KernelIdeal.S1600000 EltTy.f32)
local notation "a4" => (Memref.whole Cert.KernelIdeal.cc15_scratch0 : Memref Cert.KernelIdeal.sig Kind.scVector Space.vmem Cert.KernelIdeal.S8x3200 EltTy.f32)
local notation "a5" => (Memref.whole Cert.KernelIdeal.cc15_scratch1 : Memref Cert.KernelIdeal.sig Kind.scVector Space.vmem Cert.KernelIdeal.S8x3200 EltTy.f32)
local notation "a6" => (Memref.whole Cert.KernelIdeal.cc15_scratch2 : Memref Cert.KernelIdeal.sig Kind.scVector Space.vmem Cert.KernelIdeal.S25600 EltTy.f32)
local notation "a7" => (Memref.whole Cert.KernelIdeal.cc15_scratch3 : Memref Cert.KernelIdeal.sig Kind.scVector Space.vmem Cert.KernelIdeal.S25600 EltTy.f32)

variable [FloatOps F]

section Tile

variable (d : Dev nD) (L : grid15.Coords)

abbrev cV (L : grid15.Coords) : Fin τ.nSC := (L 0).castLE hcore15
abbrev jV (L : grid15.Coords) : Fin τ.nSub := (L 1).castLE hsub15
abbrev thr (d : Dev nD) (L : grid15.Coords) : Thread nD τ := V d (cV L) (jV L)

/-- The tile's number 2·s + c, and whether it has sixteen pieces (numbers below 20) or fifteen. -/
abbrev wid (L : grid15.Coords) : ℕ := 2 * (L 1).val + (L 0).val
abbrev big (L : grid15.Coords) : Prop := wid L < 20

omit [FloatOps F] in
theorem wid_lt (L : grid15.Coords) : wid L < 32 := by
  have h0 : (L 0).val < 2 := (L 0).isLt
  have h1 : (L 1).val < 16 := (L 1).isLt
  unfold wid; omega

/-- Piece `n` of the tile exists: `n < 15`, or `n = 15` on a tile with sixteen pieces. It is the piece number
    `wid + 32·n < 500` of the row. -/
def valid (L : grid15.Coords) (n : ℕ) : Prop := n < 15 ∨ (n = 15 ∧ big L)
instance (L : grid15.Coords) (n : ℕ) : Decidable (valid L n) := by unfold valid big; infer_instance

omit [FloatOps F] in
theorem valid_iff (L : grid15.Coords) (n : ℕ) : valid L n ↔ wid L + 32 * n < 500 := by
  have := wid_lt L; unfold valid big; omega

/-- Where piece `n` starts in the row (clamped to the last piece of the row, so that the rectangle is in bounds for
    every `n`; for a valid piece the clamp is idle). -/
abbrev pos (L : grid15.Coords) (n : ℕ) : ℕ := 3200 * min (wid L + 32 * n) 499

omit [FloatOps F] in
theorem pos_valid {L : grid15.Coords} {n : ℕ} (h : valid L n) : pos L n = 6400 * (L 1).val + 3200 * (L 0).val + 102400 * n := by
  have := (valid_iff L n).mp h; unfold pos wid at *; omega

omit [FloatOps F] in
theorem in_inb (L : grid15.Coords) (n : ℕ) : ∀ a, (![15, pos L n] : Fin 2 → ℕ) a + S1x3200.size a ≤ S22x1600000.size a := by
  intro a; fin_cases a
  · show 15 + 1 ≤ 22; omega
  · show pos L n + 3200 ≤ 1600000; unfold pos; omega
omit [FloatOps F] in
theorem out_inb (L : grid15.Coords) (n : ℕ) : ∀ a, (![pos L n] : Fin 1 → ℕ) a + S3200.size a ≤ S1600000.size a := by
  intro a; fin_cases a
  show pos L n + 3200 ≤ 1600000; unfold pos; omega

/-- Piece `n` of row 15 of the transposed argument, and piece `n` of the flat result, as memrefs of the tile. -/
abbrev inM (L : grid15.Coords) (n : ℕ) : Memref sig .scVector .hbm S1x3200 .f32 :=
  (xtW).slice (Rect.unit (s := S22x1600000) ![15, pos L n] S1x3200.size (in_inb L n)) (fun _ => rfl)
abbrev outM (L : grid15.Coords) (n : ℕ) : Memref sig .scVector .hbm S3200 .f32 :=
  (oW).slice (Rect.unit (s := S1600000) ![pos L n] S3200.size (out_inb L n)) (fun _ => rfl)

/-! The program's own slices are these pieces: by the closed forms of its offset functions. -/

omit [FloatOps F] in
theorem off2 {a b : ℕ} (h : a = b) : (![15, a] : Fin 2 → ℕ) = ![15, b] := by rw [h]
omit [FloatOps F] in
theorem off1' {a b : ℕ} (h : a = b) : (![a] : Fin 1 → ℕ) = ![b] := by rw [h]

omit [FloatOps F] in
theorem off_in0 (L : grid15.Coords) (h : valid L 0) : k15_off1 L 0#32 = ![15, pos L 0] :=
  (k15_off1_eq L 0).trans (off2 (by rw [pos_valid h]; simp))
omit [FloatOps F] in
theorem off_in1 (L : grid15.Coords) (h : valid L 1) : k15_off1 L 32#32 = ![15, pos L 1] :=
  (k15_off1_eq L 1).trans (off2 (by rw [pos_valid h]; simp))
omit [FloatOps F] in
theorem off_6 (L : grid15.Coords) (t : Fin k15_t1_loop.trips) (h : valid L (2 * t.val + 2)) : k15_off6 L t = ![15, pos L (2 * t.val + 2)] :=
  (k15_off6_eq L t).trans (off2 (by rw [pos_valid h]; omega))
omit [FloatOps F] in
theorem off_11 (L : grid15.Coords) (t : Fin k15_t1_loop.trips) (h : valid L (2 * t.val + 3)) : k15_off11 L t = ![15, pos L (2 * t.val + 3)] :=
  (k15_off11_eq L t).trans (off2 (by rw [pos_valid h]; omega))
omit [FloatOps F] in
theorem off_5 (L : grid15.Coords) (t : Fin k15_t1_loop.trips) (h : valid L (2 * t.val)) : k15_off5 L t = ![pos L (2 * t.val)] :=
  (k15_off5_eq L t).trans (off1' (by rw [pos_valid h]; omega))
omit [FloatOps F] in
theorem off_10 (L : grid15.Coords) (t : Fin k15_t1_loop.trips) (h : valid L (2 * t.val + 1)) : k15_off10 L t = ![pos L (2 * t.val + 1)] :=
  (k15_off10_eq L t).trans (off1' (by rw [pos_valid h]; omega))

/-- Holding a 1 × 3200 window of the transposed argument, or a 3200 window of the result, by exactly its elements
    says the same whichever way the window's offsets are spelt. -/
theorem in_congr {off off' : Fin 2 → ℕ} (h : off = off') (p : ∀ a, off a + S1x3200.size a ≤ S22x1600000.size a)
    (p' : ∀ a, off' a + S1x3200.size a ≤ S22x1600000.size a) (f : Buf (Elt F) ((xtW).view.loc (thr d L))) :
    (((xtW).slice (Rect.unit (s := S22x1600000) off S1x3200.size p) (fun _ => rfl)).view.loc (thr d L)
        ↦[((xtW).slice (Rect.unit (s := S22x1600000) off S1x3200.size p) (fun _ => rfl)).view.set]{fullShare} f : sProp 𝕄)
      = (((xtW).slice (Rect.unit (s := S22x1600000) off' S1x3200.size p') (fun _ => rfl)).view.loc (thr d L)
        ↦[((xtW).slice (Rect.unit (s := S22x1600000) off' S1x3200.size p') (fun _ => rfl)).view.set]{fullShare} f) := by
  subst h; rfl
theorem out_congr {off off' : Fin 1 → ℕ} (h : off = off') (p : ∀ a, off a + S3200.size a ≤ S1600000.size a)
    (p' : ∀ a, off' a + S3200.size a ≤ S1600000.size a) (f : Buf (Elt F) ((oW).view.loc (thr d L))) :
    (((oW).slice (Rect.unit (s := S1600000) off S3200.size p) (fun _ => rfl)).view.loc (thr d L)
        ↦[((oW).slice (Rect.unit (s := S1600000) off S3200.size p) (fun _ => rfl)).view.set]{fullShare} f : sProp 𝕄)
      = (((oW).slice (Rect.unit (s := S1600000) off' S3200.size p') (fun _ => rfl)).view.loc (thr d L)
        ↦[((oW).slice (Rect.unit (s := S1600000) off' S3200.size p') (fun _ => rfl)).view.set]{fullShare} f) := by
  subst h; rfl

/-! The printed conditions, as facts about the trip and the tile. -/

omit [FloatOps F] in
theorem trips1 : k15_t1_loop.trips = 8 := by decide
omit [FloatOps F] in
theorem cond1_iff : ∀ (t : Fin k15_t1_loop.trips), k15_cond1 t = 1#1 ↔ 1 ≤ t.val := by decide +kernel
omit [FloatOps F] in
theorem cond2_iff : ∀ (L : grid15.Coords) (t : Fin k15_t1_loop.trips), k15_cond2 L t = 1#1 := by decide +kernel
omit [FloatOps F] in
theorem cond3_iff : ∀ (L : grid15.Coords) (t : Fin k15_t1_loop.trips), k15_cond3 L t = 1#1 ↔ t.val ≤ 6 := by decide +kernel
omit [FloatOps F] in
theorem cond4_iff : ∀ (t : Fin k15_t1_loop.trips), k15_cond4 t = 1#1 ↔ 1 ≤ t.val := by decide +kernel
omit [FloatOps F] in
theorem cond5_iff : ∀ (L : grid15.Coords) (t : Fin k15_t1_loop.trips), k15_cond5 L t = 1#1 ↔ (t.val ≤ 6 ∨ big L) := by decide +kernel
omit [FloatOps F] in
theorem cond6_iff : ∀ (L : grid15.Coords) (t : Fin k15_t1_loop.trips), k15_cond6 L t = 1#1 ↔ (t.val ≤ 5 ∨ (t.val = 6 ∧ big L)) := by decide +kernel
omit [FloatOps F] in
theorem cond7_iff : ∀ (L : grid15.Coords), k15_cond7 L = 1#1 := by decide +kernel
omit [FloatOps F] in
theorem cond8_iff : ∀ (L : grid15.Coords), k15_cond8 L = 1#1 ↔ big L := by decide +kernel

variable (O : CellTallies nD τ sig (HIx 22)) (W : Waits sig (HIx 22))
variable (fx : Buf (Elt F) ((xtW).view.loc (thr d L)))

abbrev NN : ℕ := 102400

/-- The 3200-element window of a flat staging buffer that a piece is written out from. -/
abbrev stg (a : Memref sig .scVector .vmem S25600 .f32) : Memref sig .scVector .vmem S3200 .f32 :=
  a.slice (Rect.unit (s := S25600) ![0] S3200.size inb_S25600_S3200_0) (fun _ => rfl)

/-- Piece `n` of the argument row held by exactly its elements, at the argument's contents; piece `n` of the result
    held by exactly its elements, at some contents. -/
abbrev xtPiece (n : ℕ) : sProp 𝕄 := (inM L n).view.loc (thr d L) ↦[(inM L n).view.set]{fullShare} fx
abbrev oPiece (n : ℕ) : sProp 𝕄 := iprop(∃ f, (outM L n).view.loc (thr d L) ↦[(outM L n).view.set]{fullShare} f)

/-- The lane-copy loop of a slot: the staging row keeps its contents, the flat staging buffer holds some contents. -/
def laneInv0 (g4 : Buf (Elt F) ((a4).view.loc (thr d L))) (_ : ℕ) (_ : PUnit) : sProp 𝕄 :=
  iprop(((a4).view.loc (thr d L) ↦{fullShare} g4) ∗ (∃ g, (a6).view.loc (thr d L) ↦{fullShare} g))
def laneInv1 (g5 : Buf (Elt F) ((a5).view.loc (thr d L))) (_ : ℕ) (_ : PUnit) : sProp 𝕄 :=
  iprop(((a5).view.loc (thr d L) ↦{fullShare} g5) ∗ (∃ g, (a7).view.loc (thr d L) ↦{fullShare} g))

/-- A fetch slot before trip work on piece `n`: the piece's fetch in flight (it will hand back the staging row at some
    contents, and the piece), or, when there is no such piece, the slot idle. -/
def inSlot (a : Memref sig .scVector .vmem S8x3200 .f32) (sm : DmaSem sig) (n : ℕ) : sProp 𝕄 :=
  if valid L n then
    iprop(∃ g, Transfers.Flight countersEmb (thr d L) (SemLoc.dma sm) (default : HIx 22) NN
      iprop((a.view.loc (thr d L) ↦{fullShare} g) ∗ xtPiece d L fx n))
  else iprop((∃ g, a.view.loc (thr d L) ↦{fullShare} g) ∗ semVal (thr d L, SemLoc.dma sm) 0)

/-- A write-out slot before trip work on piece `m`: piece `m - 2`'s write-out in flight (it will hand back that piece
    of the result at some contents, and the staging window), the rest of the staging buffer beside it; or idle. -/
def outSlot (a : Memref sig .scVector .vmem S25600 .f32) (sm : DmaSem sig) (m : ℕ) : sProp 𝕄 :=
  if 2 ≤ m ∧ valid L (m - 2) then
    iprop(∃ g, Transfers.Flight countersEmb (thr d L) (SemLoc.dma sm) (default : HIx 22) NN
        iprop(oPiece d L (m - 2) ∗ ((stg a).view.loc (thr d L) ↦[(stg a).view.set]{fullShare} g))
      ∗ (a.view.loc (thr d L) ↦[Finset.univ \ (stg a).view.set]{fullShare} g))
  else iprop((∃ g, a.view.loc (thr d L) ↦{fullShare} g) ∗ semVal (thr d L, SemLoc.dma sm) 0)

/-- Piece `n` when it exists, nothing otherwise. -/
def xP (n : ℕ) : sProp 𝕄 := if valid L n then xtPiece d L fx n else iprop(emp)
def oP (n : ℕ) : sProp 𝕄 := if valid L n then oPiece d L n else iprop(emp)

/-- What the tile holds outside the slots before trip `t`: every piece of the argument row but those being fetched
    (`2t`, `2t + 1`), every piece of the result but those being written out (`2t - 2`, `2t - 1`). -/
def xSet (t : ℕ) : Finset ℕ := (Finset.range 18).filter fun n => n ≠ 2 * t ∧ n ≠ 2 * t + 1
def oSet (t : ℕ) : Finset ℕ := (Finset.range 18).filter fun n => n + 2 ≠ 2 * t ∧ n + 2 ≠ 2 * t + 1

def inv (t : ℕ) (_ : PUnit) : sProp 𝕄 :=
  iprop(Transfers.MayWaits (thr d L) (none : HIx 22) O
    ∗ (∃ W', ⌜∀ p ∈ W', p ∈ W ∨ p.2 = none⌝ ∗ owes (thr d L) O W')
    ∗ bigSep (xSet t) (xP d L fx) ∗ bigSep (oSet t) (oP d L)
    ∗ inSlot d L fx a4 cc15_scratch4.sem (2 * t) ∗ outSlot d L a6 cc15_scratch6.sem (2 * t)
    ∗ inSlot d L fx a5 cc15_scratch5.sem (2 * t + 1) ∗ outSlot d L a7 cc15_scratch7.sem (2 * t + 1))

omit [FloatOps F] in
theorem two_out {Φ : ℕ → sProp 𝕄} {s : Finset ℕ} {a b : ℕ} (ha : a ∈ s) (hb : b ∈ s) (hab : a ≠ b) :
    bigSep s Φ = iprop(Φ a ∗ Φ b ∗ bigSep ((s.erase a).erase b) Φ) := by
  rw [SparseCore.bigSep_erase' ha, SparseCore.bigSep_erase' (Finset.mem_erase.mpr ⟨fun e => hab e.symm, hb⟩)]

omit [FloatOps F] in
theorem range18_split : (Finset.range 18) = insert 0 (insert 1 (xSet 0)) := by decide

theorem xRange_split (v0 : valid L 0) (v1 : valid L 1) :
    bigSep (Finset.range 18) (xP d L fx) = iprop(xtPiece d L fx 0 ∗ xtPiece d L fx 1 ∗ bigSep (xSet 0) (xP d L fx)) := by
  rw [range18_split, SparseCore.bigSep_insert' (by decide), SparseCore.bigSep_insert' (by decide)]
  unfold xP; rw [if_pos v0, if_pos v1]
omit [FloatOps F] in
theorem oSet_zero : oSet 0 = Finset.range 18 := by decide

theorem inSlot_pos {a : Memref sig .scVector .vmem S8x3200 .f32} {sm : DmaSem sig} {n : ℕ} (v : valid L n) :
    inSlot d L fx a sm n = iprop(∃ g, Transfers.Flight countersEmb (thr d L) (SemLoc.dma sm) (default : HIx 22) NN
      iprop((a.view.loc (thr d L) ↦{fullShare} g) ∗ xtPiece d L fx n)) := by unfold inSlot; rw [if_pos v]
theorem inSlot_neg {a : Memref sig .scVector .vmem S8x3200 .f32} {sm : DmaSem sig} {n : ℕ} (v : ¬ valid L n) :
    inSlot d L fx a sm n = iprop((∃ g, a.view.loc (thr d L) ↦{fullShare} g) ∗ semVal (thr d L, SemLoc.dma sm) 0) := by
  unfold inSlot; rw [if_neg v]
theorem outSlot_pos {a : Memref sig .scVector .vmem S25600 .f32} {sm : DmaSem sig} {m : ℕ} (h : 2 ≤ m ∧ valid L (m - 2)) :
    outSlot (F := F) d L a sm m = iprop(∃ g, Transfers.Flight countersEmb (thr d L) (SemLoc.dma sm) (default : HIx 22) NN
        iprop(oPiece (F := F) d L (m - 2) ∗ ((stg a).view.loc (thr d L) ↦[(stg a).view.set]{fullShare} g))
      ∗ (a.view.loc (thr d L) ↦[Finset.univ \ (stg a).view.set]{fullShare} g)) := by unfold outSlot; rw [if_pos h]
theorem outSlot_neg {a : Memref sig .scVector .vmem S25600 .f32} {sm : DmaSem sig} {m : ℕ} (h : ¬ (2 ≤ m ∧ valid L (m - 2))) :
    outSlot (F := F) d L a sm m = iprop((∃ g, a.view.loc (thr d L) ↦{fullShare} g) ∗ semVal (thr d L, SemLoc.dma sm) 0) := by
  unfold outSlot; rw [if_neg h]

/-- A fetch in flight, its source window spelt by any offsets equal to piece `n`'s, fills the fetch slot for `n`. -/
theorem fl_in {off : Fin 2 → ℕ} {n : ℕ} (h : off = ![15, pos L n]) (p : ∀ a, off a + S1x3200.size a ≤ S22x1600000.size a) (v : valid L n)
    (a : Memref sig .scVector .vmem S8x3200 .f32) (sm : DmaSem sig) :
    (iprop(∃ g, Transfers.Flight countersEmb (thr d L) (SemLoc.dma sm) (default : HIx 22) NN
        iprop((a.view.loc (thr d L) ↦{fullShare} g)
          ∗ (((xtW).slice (Rect.unit (s := S22x1600000) off S1x3200.size p) (fun _ => rfl)).view.loc (thr d L)
              ↦[((xtW).slice (Rect.unit (s := S22x1600000) off S1x3200.size p) (fun _ => rfl)).view.set]{fullShare} fx))) : sProp 𝕄)
      ⊢ inSlot d L fx a sm n := by
  rw [inSlot_pos d L fx v]
  iintro ⟨%g, H⟩
  have hD : (iprop((a.view.loc (thr d L) ↦{fullShare} g)
          ∗ (((xtW).slice (Rect.unit (s := S22x1600000) off S1x3200.size p) (fun _ => rfl)).view.loc (thr d L)
              ↦[((xtW).slice (Rect.unit (s := S22x1600000) off S1x3200.size p) (fun _ => rfl)).view.set]{fullShare} fx)) : sProp 𝕄)
      ⊢ iprop((a.view.loc (thr d L) ↦{fullShare} g) ∗ xtPiece d L fx n) := by
    iintro ⟨H1, H2⟩
    isplitl [H1]; · iexact H1
    iapply (Entails.of_eq (in_congr d L h p (in_inb L n) fx)); iexact H2
  iexists g
  iapply (Transfers.Flight_mono countersEmb (thr d L) hD); iexact H

/-- A write-out in flight, its destination window spelt by any offsets equal to piece `n`'s, with the rest of the
    staging buffer, fills the write-out slot for `n + 2`. -/
theorem fl_out {off : Fin 1 → ℕ} {n : ℕ} (h : off = ![pos L n]) (p : ∀ a, off a + S3200.size a ≤ S1600000.size a) (v : valid L n)
    (a : Memref sig .scVector .vmem S25600 .f32) (sm : DmaSem sig) :
    (iprop(∃ (f : Buf (Elt F) ((oW).view.loc (thr d L))) (g : Buf (Elt F) (a.view.loc (thr d L))), Transfers.Flight countersEmb (thr d L) (SemLoc.dma sm) (default : HIx 22) NN
        iprop((((oW).slice (Rect.unit (s := S1600000) off S3200.size p) (fun _ => rfl)).view.loc (thr d L)
              ↦[((oW).slice (Rect.unit (s := S1600000) off S3200.size p) (fun _ => rfl)).view.set]{fullShare} f)
          ∗ ((stg a).view.loc (thr d L) ↦[(stg a).view.set]{fullShare} g))
        ∗ (a.view.loc (thr d L) ↦[Finset.univ \ (stg a).view.set]{fullShare} g)) : sProp 𝕄)
      ⊢ outSlot (F := F) d L a sm (n + 2) := by
  rw [outSlot_pos (F := F) d L (m := n + 2) ⟨by omega, by simpa using v⟩]
  iintro ⟨%f, %g, H, R⟩
  have hD : (iprop((((oW).slice (Rect.unit (s := S1600000) off S3200.size p) (fun _ => rfl)).view.loc (thr d L)
              ↦[((oW).slice (Rect.unit (s := S1600000) off S3200.size p) (fun _ => rfl)).view.set]{fullShare} f)
          ∗ ((stg a).view.loc (thr d L) ↦[(stg a).view.set]{fullShare} g)) : sProp 𝕄)
      ⊢ iprop(oPiece (F := F) d L (n + 2 - 2) ∗ ((stg a).view.loc (thr d L) ↦[(stg a).view.set]{fullShare} g)) := by
    rw [Nat.add_sub_cancel]
    iintro ⟨H1, H2⟩
    isplitl [H1]
    · iexists f; iapply (Entails.of_eq (out_congr d L h p (out_inb L n) f)); iexact H1
    · iexact H2
  iexists g
  isplitl [H]
  · iapply (Transfers.Flight_mono countersEmb (thr d L) hD); iexact H
  · iexact R

/-! The pieces outside the slots, from one trip to the next. -/
def xCore (k : ℕ) : Finset ℕ := (Finset.range 18).filter fun n => n ≠ 2 * k ∧ n ≠ 2 * k + 1 ∧ n ≠ 2 * k + 2 ∧ n ≠ 2 * k + 3
def oCore (k : ℕ) : Finset ℕ := (Finset.range 18).filter fun n => n + 2 ≠ 2 * k ∧ n + 2 ≠ 2 * k + 1 ∧ n ≠ 2 * k ∧ n ≠ 2 * k + 1

omit [FloatOps F] in
theorem xSet_out (Φ : ℕ → sProp 𝕄) (k : ℕ) (hk : k < 8) : bigSep (xSet k) Φ = iprop(Φ (2 * k + 2) ∗ Φ (2 * k + 3) ∗ bigSep (xCore k) Φ) := by
  have e : ((xSet k).erase (2 * k + 2)).erase (2 * k + 3) = xCore k := by
    ext n; simp only [xSet, xCore, Finset.mem_erase, Finset.mem_filter, Finset.mem_range]; omega
  rw [← e]; exact two_out (by simp only [xSet, Finset.mem_filter, Finset.mem_range]; omega) (by simp only [xSet, Finset.mem_filter, Finset.mem_range]; omega) (by omega)
omit [FloatOps F] in
theorem xSet_in (Φ : ℕ → sProp 𝕄) (k : ℕ) (hk : k < 8) : bigSep (xSet (k + 1)) Φ = iprop(Φ (2 * k) ∗ Φ (2 * k + 1) ∗ bigSep (xCore k) Φ) := by
  have e : ((xSet (k + 1)).erase (2 * k)).erase (2 * k + 1) = xCore k := by
    ext n; simp only [xSet, xCore, Finset.mem_erase, Finset.mem_filter, Finset.mem_range]; omega
  rw [← e]; exact two_out (by simp only [xSet, Finset.mem_filter, Finset.mem_range]; omega) (by simp only [xSet, Finset.mem_filter, Finset.mem_range]; omega) (by omega)
omit [FloatOps F] in
theorem oSet_out (Φ : ℕ → sProp 𝕄) (k : ℕ) (hk : k < 8) : bigSep (oSet k) Φ = iprop(Φ (2 * k) ∗ Φ (2 * k + 1) ∗ bigSep (oCore k) Φ) := by
  have e : ((oSet k).erase (2 * k)).erase (2 * k + 1) = oCore k := by
    ext n; simp only [oSet, oCore, Finset.mem_erase, Finset.mem_filter, Finset.mem_range]; omega
  rw [← e]; exact two_out (by simp only [oSet, Finset.mem_filter, Finset.mem_range]; omega) (by simp only [oSet, Finset.mem_filter, Finset.mem_range]; omega) (by omega)
omit [FloatOps F] in
theorem oSet_in (Φ : ℕ → sProp 𝕄) (k : ℕ) (hk : k < 8) (hk1 : 1 ≤ k) :
    bigSep (oSet (k + 1)) Φ = iprop(Φ (2 * k - 2) ∗ Φ (2 * k - 1) ∗ bigSep (oCore k) Φ) := by
  have e : ((oSet (k + 1)).erase (2 * k - 2)).erase (2 * k - 1) = oCore k := by
    ext n; simp only [oSet, oCore, Finset.mem_erase, Finset.mem_filter, Finset.mem_range]; omega
  rw [← e]; exact two_out (by simp only [oSet, Finset.mem_filter, Finset.mem_range]; omega) (by simp only [oSet, Finset.mem_filter, Finset.mem_range]; omega) (by omega)

theorem xP_pos {n : ℕ} (v : valid L n) : xP d L fx n = xtPiece d L fx n := if_pos v
theorem oP_pos {n : ℕ} (v : valid L n) : oP (F := F) d L n = oPiece (F := F) d L n := if_pos v
theorem xP_neg {n : ℕ} (v : ¬ valid L n) : xP d L fx n = iprop(emp) := if_neg v
theorem oP_neg {n : ℕ} (v : ¬ valid L n) : oP (F := F) d L n = iprop(emp) := if_neg v

/-- Piece `n` of the result at its final contents: row 15 of the transposed argument. -/
def oQ (n : ℕ) : sProp 𝕄 :=
  if valid L n then (outM L n).view.loc (thr d L) ↦[(outM L n).view.set]{fullShare} (Cert.Spec.row 15 fx) else iprop(emp)

/-- What a tile is handed for the call: its pieces of row 15 of the transposed argument, at the argument's contents, and
    its pieces of the result at some contents. What it hands back: the same pieces of the argument, and its pieces of
    the result holding the row. -/
def goRes : sProp 𝕄 := iprop(bigSep (Finset.range 18) (xP d L fx) ∗ bigSep (Finset.range 18) (oP (F := F) d L))
def tdRes : sProp 𝕄 := iprop(bigSep (Finset.range 18) (xP d L fx) ∗ bigSep (Finset.range 18) (oQ d L fx))

end Tile

end Cert.Proof.TileK15

end
-- ==== Proof.TileK16Defs.lean ====
/-
  One vector subcore's task of copy kernel 16 (counting from 0): definitions. The task moves its pieces of row 16 of the
  transposed argument (pieces of 3200 consecutive elements, piece number 2·s + c + 32·n for the subcore (c, s) and
  n = 0, 1, … while that number is below 500) into the flat result: each piece is fetched into a staging row, copied
  16 lanes at a time into a flat staging buffer, and written out, two pieces in flight at a time. Here: the pieces as
  memrefs, the program's own spellings of them, the printed conditions as facts about the trip, the two slots' states
  between trips, and what the tile holds outside the slots.
-/
import proofs.«206869_g37898791420194_cont_8to1_b_558_20_alg».proof.Defs
import Idealize.ShloMosaic.Lib.SparseCore.Launch
import Idealize.ShloMosaic.Lib.StableHlo.Run
import Idealize.ShloMosaic.Lib.Pipeline.Kit
import Idealize.ShloMosaic.Lib.Tactic
import proofs.«206869_g37898791420194_cont_8to1_b_558_20_alg».proof.Proof.Gen.KernelIdeal
import proofs.«206869_g37898791420194_cont_8to1_b_558_20_alg».proof.Proof.Gen.KernelIdeal.Skeleton
import proofs.«206869_g37898791420194_cont_8to1_b_558_20_alg».proof.Proof.Spec

noncomputable section

namespace Cert.Proof.TileK16

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

abbrev ΛP : Labels := Pipeline.Sig Λ₀ (Fin 0) fun p => (pcfgs (F := F) p).Adm
abbrev K : SparseCore.Cfg τ sig (ΛP (F := F)) 22 := sc (F := F)
abbrev 𝒱₀ : Variants := Variants.none

abbrev UH : Type := URounds (GSem nD τ sig) ℕ
abbrev UU : Type := UH × Counters

local notation "𝕄" => MT nD τ sig (HIx 22) (Elt F) ℕ UU ℕ

local notation "xtW" => (Memref.whole Cert.KernelIdeal.main_v0_scv : Memref Cert.KernelIdeal.sig Kind.scVector Space.hbm Cert.KernelIdeal.S22x1600000 EltTy.f32)
local notation "oW" => (Memref.whole Cert.KernelIdeal.main_v17_scv : Memref Cert.KernelIdeal.sig Kind.scVector Space.hbm Cert.KernelIdeal.S1600000 EltTy.f32)
local notation "a4" => (Memref.whole Cert.KernelIdeal.cc16_scratch0 : Memref Cert.KernelIdeal.sig Kind.scVector Space.vmem Cert.KernelIdeal.S8x3200 EltTy.f32)
local notation "a5" => (Memref.whole Cert.KernelIdeal.cc16_scratch1 : Memref Cert.KernelIdeal.sig Kind.scVector Space.vmem Cert.KernelIdeal.S8x3200 EltTy.f32)
local notation "a6" => (Memref.whole Cert.KernelIdeal.cc16_scratch2 : Memref Cert.KernelIdeal.sig Kind.scVector Space.vmem Cert.KernelIdeal.S25600 EltTy.f32)
local notation "a7" => (Memref.whole Cert.KernelIdeal.cc16_scratch3 : Memref Cert.KernelIdeal.sig Kind.scVector Space.vmem Cert.KernelIdeal.S25600 EltTy.f32)

variable [FloatOps F]

section Tile

variable (d : Dev nD) (L : grid16.Coords)

abbrev cV (L : grid16.Coords) : Fin τ.nSC := (L 0).castLE hcore16
abbrev jV (L : grid16.Coords) : Fin τ.nSub := (L 1).castLE hsub16
abbrev thr (d : Dev nD) (L : grid16.Coords) : Thread nD τ := V d (cV L) (jV L)

/-- The tile's number 2·s + c, and whether it has sixteen pieces (numbers below 20) or fifteen. -/
abbrev wid (L : grid16.Coords) : ℕ := 2 * (L 1).val + (L 0).val
abbrev big (L : grid16.Coords) : Prop := wid L < 20

omit [FloatOps F] in
theorem wid_lt (L : grid16.Coords) : wid L < 32 := by
  have h0 : (L 0).val < 2 := (L 0).isLt
  have h1 : (L 1).val < 16 := (L 1).isLt
  unfold wid; omega

/-- Piece `n` of the tile exists: `n < 15`, or `n = 15` on a tile with sixteen pieces. It is the piece number
    `wid + 32·n < 500` of the row. -/
def valid (L : grid16.Coords) (n : ℕ) : Prop := n < 15 ∨ (n = 15 ∧ big L)
instance (L : grid16.Coords) (n : ℕ) : Decidable (valid L n) := by unfold valid big; infer_instance

omit [FloatOps F] in
theorem valid_iff (L : grid16.Coords) (n : ℕ) : valid L n ↔ wid L + 32 * n < 500 := by
  have := wid_lt L; unfold valid big; omega

/-- Where piece `n` starts in the row (clamped to the last piece of the row, so that the rectangle is in bounds for
    every `n`; for a valid piece the clamp is idle). -/
abbrev pos (L : grid16.Coords) (n : ℕ) : ℕ := 3200 * min (wid L + 32 * n) 499

omit [FloatOps F] in
theorem pos_valid {L : grid16.Coords} {n : ℕ} (h : valid L n) : pos L n = 6400 * (L 1).val + 3200 * (L 0).val + 102400 * n := by
  have := (valid_iff L n).mp h; unfold pos wid at *; omega

omit [FloatOps F] in
theorem in_inb (L : grid16.Coords) (n : ℕ) : ∀ a, (![16, pos L n] : Fin 2 → ℕ) a + S1x3200.size a ≤ S22x1600000.size a := by
  intro a; fin_cases a
  · show 16 + 1 ≤ 22; omega
  · show pos L n + 3200 ≤ 1600000; unfold pos; omega
omit [FloatOps F] in
theorem out_inb (L : grid16.Coords) (n : ℕ) : ∀ a, (![pos L n] : Fin 1 → ℕ) a + S3200.size a ≤ S1600000.size a := by
  intro a; fin_cases a
  show pos L n + 3200 ≤ 1600000; unfold pos; omega

/-- Piece `n` of row 16 of the transposed argument, and piece `n` of the flat result, as memrefs of the tile. -/
abbrev inM (L : grid16.Coords) (n : ℕ) : Memref sig .scVector .hbm S1x3200 .f32 :=
  (xtW).slice (Rect.unit (s := S22x1600000) ![16, pos L n] S1x3200.size (in_inb L n)) (fun _ => rfl)
abbrev outM (L : grid16.Coords) (n : ℕ) : Memref sig .scVector .hbm S3200 .f32 :=
  (oW).slice (Rect.unit (s := S1600000) ![pos L n] S3200.size (out_inb L n)) (fun _ => rfl)

/-! The program's own slices are these pieces: by the closed forms of its offset functions. -/

omit [FloatOps F] in
theorem off2 {a b : ℕ} (h : a = b) : (![16, a] : Fin 2 → ℕ) = ![16, b] := by rw [h]
omit [FloatOps F] in
theorem off1' {a b : ℕ} (h : a = b) : (![a] : Fin 1 → ℕ) = ![b] := by rw [h]

omit [FloatOps F] in
theorem off_in0 (L : grid16.Coords) (h : valid L 0) : k16_off1 L 0#32 = ![16, pos L 0] :=
  (k16_off1_eq L 0).trans (off2 (by rw [pos_valid h]; simp))
omit [FloatOps F] in
theorem off_in1 (L : grid16.Coords) (h : valid L 1) : k16_off1 L 32#32 = ![16, pos L 1] :=
  (k16_off1_eq L 1).trans (off2 (by rw [pos_valid h]; simp))
omit [FloatOps F] in
theorem off_6 (L : grid16.Coords) (t : Fin k16_t1_loop.trips) (h : valid L (2 * t.val + 2)) : k16_off6 L t = ![16, pos L (2 * t.val + 2)] :=
  (k16_off6_eq L t).trans (off2 (by rw [pos_valid h]; omega))
omit [FloatOps F] in
theorem off_11 (L : grid16.Coords) (t : Fin k16_t1_loop.trips) (h : valid L (2 * t.val + 3)) : k16_off11 L t = ![16, pos L (2 * t.val + 3)] :=
  (k16_off11_eq L t).trans (off2 (by rw [pos_valid h]; omega))
omit [FloatOps F] in
theorem off_5 (L : grid16.Coords) (t : Fin k16_t1_loop.trips) (h : valid L (2 * t.val)) : k16_off5 L t = ![pos L (2 * t.val)] :=
  (k16_off5_eq L t).trans (off1' (by rw [pos_valid h]; omega))
omit [FloatOps F] in
theorem off_10 (L : grid16.Coords) (t : Fin k16_t1_loop.trips) (h : valid L (2 * t.val + 1)) : k16_off10 L t = ![pos L (2 * t.val + 1)] :=
  (k16_off10_eq L t).trans (off1' (by rw [pos_valid h]; omega))

/-- Holding a 1 × 3200 window of the transposed argument, or a 3200 window of the result, by exactly its elements
    says the same whichever way the window's offsets are spelt. -/
theorem in_congr {off off' : Fin 2 → ℕ} (h : off = off') (p : ∀ a, off a + S1x3200.size a ≤ S22x1600000.size a)
    (p' : ∀ a, off' a + S1x3200.size a ≤ S22x1600000.size a) (f : Buf (Elt F) ((xtW).view.loc (thr d L))) :
    (((xtW).slice (Rect.unit (s := S22x1600000) off S1x3200.size p) (fun _ => rfl)).view.loc (thr d L)
        ↦[((xtW).slice (Rect.unit (s := S22x1600000) off S1x3200.size p) (fun _ => rfl)).view.set]{fullShare} f : sProp 𝕄)
      = (((xtW).slice (Rect.unit (s := S22x1600000) off' S1x3200.size p') (fun _ => rfl)).view.loc (thr d L)
        ↦[((xtW).slice (Rect.unit (s := S22x1600000) off' S1x3200.size p') (fun _ => rfl)).view.set]{fullShare} f) := by
  subst h; rfl
theorem out_congr {off off' : Fin 1 → ℕ} (h : off = off') (p : ∀ a, off a + S3200.size a ≤ S1600000.size a)
    (p' : ∀ a, off' a + S3200.size a ≤ S1600000.size a) (f : Buf (Elt F) ((oW).view.loc (thr d L))) :
    (((oW).slice (Rect.unit (s := S1600000) off S3200.size p) (fun _ => rfl)).view.loc (thr d L)
        ↦[((oW).slice (Rect.unit (s := S1600000) off S3200.size p) (fun _ => rfl)).view.set]{fullShare} f : sProp 𝕄)
      = (((oW).slice (Rect.unit (s := S1600000) off' S3200.size p') (fun _ => rfl)).view.loc (thr d L)
        ↦[((oW).slice (Rect.unit (s := S1600000) off' S3200.size p') (fun _ => rfl)).view.set]{fullShare} f) := by
  subst h; rfl

/-! The printed conditions, as facts about the trip and the tile. -/

omit [FloatOps F] in
theorem trips1 : k16_t1_loop.trips = 8 := by decide
omit [FloatOps F] in
theorem cond1_iff : ∀ (t : Fin k16_t1_loop.trips), k16_cond1 t = 1#1 ↔ 1 ≤ t.val := by decide +kernel
omit [FloatOps F] in
theorem cond2_iff : ∀ (L : grid16.Coords) (t : Fin k16_t1_loop.trips), k16_cond2 L t = 1#1 := by decide +kernel
omit [FloatOps F] in
theorem cond3_iff : ∀ (L : grid16.Coords) (t : Fin k16_t1_loop.trips), k16_cond3 L t = 1#1 ↔ t.val ≤ 6 := by decide +kernel
omit [FloatOps F] in
theorem cond4_iff : ∀ (t : Fin k16_t1_loop.trips), k16_cond4 t = 1#1 ↔ 1 ≤ t.val := by decide +kernel
omit [FloatOps F] in
theorem cond5_iff : ∀ (L : grid16.Coords) (t : Fin k16_t1_loop.trips), k16_cond5 L t = 1#1 ↔ (t.val ≤ 6 ∨ big L) := by decide +kernel
omit [FloatOps F] in
theorem cond6_iff : ∀ (L : grid16.Coords) (t : Fin k16_t1_loop.trips), k16_cond6 L t = 1#1 ↔ (t.val ≤ 5 ∨ (t.val = 6 ∧ big L)) := by decide +kernel
omit [FloatOps F] in
theorem cond7_iff : ∀ (L : grid16.Coords), k16_cond7 L = 1#1 := by decide +kernel
omit [FloatOps F] in
theorem cond8_iff : ∀ (L : grid16.Coords), k16_cond8 L = 1#1 ↔ big L := by decide +kernel

variable (O : CellTallies nD τ sig (HIx 22)) (W : Waits sig (HIx 22))
variable (fx : Buf (Elt F) ((xtW).view.loc (thr d L)))

abbrev NN : ℕ := 102400

/-- The 3200-element window of a flat staging buffer that a piece is written out from. -/
abbrev stg (a : Memref sig .scVector .vmem S25600 .f32) : Memref sig .scVector .vmem S3200 .f32 :=
  a.slice (Rect.unit (s := S25600) ![0] S3200.size inb_S25600_S3200_0) (fun _ => rfl)

/-- Piece `n` of the argument row held by exactly its elements, at the argument's contents; piece `n` of the result
    held by exactly its elements, at some contents. -/
abbrev xtPiece (n : ℕ) : sProp 𝕄 := (inM L n).view.loc (thr d L) ↦[(inM L n).view.set]{fullShare} fx
abbrev oPiece (n : ℕ) : sProp 𝕄 := iprop(∃ f, (outM L n).view.loc (thr d L) ↦[(outM L n).view.set]{fullShare} f)

/-- The lane-copy loop of a slot: the staging row keeps its contents, the flat staging buffer holds some contents. -/
def laneInv0 (g4 : Buf (Elt F) ((a4).view.loc (thr d L))) (_ : ℕ) (_ : PUnit) : sProp 𝕄 :=
  iprop(((a4).view.loc (thr d L) ↦{fullShare} g4) ∗ (∃ g, (a6).view.loc (thr d L) ↦{fullShare} g))
def laneInv1 (g5 : Buf (Elt F) ((a5).view.loc (thr d L))) (_ : ℕ) (_ : PUnit) : sProp 𝕄 :=
  iprop(((a5).view.loc (thr d L) ↦{fullShare} g5) ∗ (∃ g, (a7).view.loc (thr d L) ↦{fullShare} g))

/-- A fetch slot before trip work on piece `n`: the piece's fetch in flight (it will hand back the staging row at some
    contents, and the piece), or, when there is no such piece, the slot idle. -/
def inSlot (a : Memref sig .scVector .vmem S8x3200 .f32) (sm : DmaSem sig) (n : ℕ) : sProp 𝕄 :=
  if valid L n then
    iprop(∃ g, Transfers.Flight countersEmb (thr d L) (SemLoc.dma sm) (default : HIx 22) NN
      iprop((a.view.loc (thr d L) ↦{fullShare} g) ∗ xtPiece d L fx n))
  else iprop((∃ g, a.view.loc (thr d L) ↦{fullShare} g) ∗ semVal (thr d L, SemLoc.dma sm) 0)

/-- A write-out slot before trip work on piece `m`: piece `m - 2`'s write-out in flight (it will hand back that piece
    of the result at some contents, and the staging window), the rest of the staging buffer beside it; or idle. -/
def outSlot (a : Memref sig .scVector .vmem S25600 .f32) (sm : DmaSem sig) (m : ℕ) : sProp 𝕄 :=
  if 2 ≤ m ∧ valid L (m - 2) then
    iprop(∃ g, Transfers.Flight countersEmb (thr d L) (SemLoc.dma sm) (default : HIx 22) NN
        iprop(oPiece d L (m - 2) ∗ ((stg a).view.loc (thr d L) ↦[(stg a).view.set]{fullShare} g))
      ∗ (a.view.loc (thr d L) ↦[Finset.univ \ (stg a).view.set]{fullShare} g))
  else iprop((∃ g, a.view.loc (thr d L) ↦{fullShare} g) ∗ semVal (thr d L, SemLoc.dma sm) 0)

/-- Piece `n` when it exists, nothing otherwise. -/
def xP (n : ℕ) : sProp 𝕄 := if valid L n then xtPiece d L fx n else iprop(emp)
def oP (n : ℕ) : sProp 𝕄 := if valid L n then oPiece d L n else iprop(emp)

/-- What the tile holds outside the slots before trip `t`: every piece of the argument row but those being fetched
    (`2t`, `2t + 1`), every piece of the result but those being written out (`2t - 2`, `2t - 1`). -/
def xSet (t : ℕ) : Finset ℕ := (Finset.range 18).filter fun n => n ≠ 2 * t ∧ n ≠ 2 * t + 1
def oSet (t : ℕ) : Finset ℕ := (Finset.range 18).filter fun n => n + 2 ≠ 2 * t ∧ n + 2 ≠ 2 * t + 1

def inv (t : ℕ) (_ : PUnit) : sProp 𝕄 :=
  iprop(Transfers.MayWaits (thr d L) (none : HIx 22) O
    ∗ (∃ W', ⌜∀ p ∈ W', p ∈ W ∨ p.2 = none⌝ ∗ owes (thr d L) O W')
    ∗ bigSep (xSet t) (xP d L fx) ∗ bigSep (oSet t) (oP d L)
    ∗ inSlot d L fx a4 cc16_scratch4.sem (2 * t) ∗ outSlot d L a6 cc16_scratch6.sem (2 * t)
    ∗ inSlot d L fx a5 cc16_scratch5.sem (2 * t + 1) ∗ outSlot d L a7 cc16_scratch7.sem (2 * t + 1))

omit [FloatOps F] in
theorem two_out {Φ : ℕ → sProp 𝕄} {s : Finset ℕ} {a b : ℕ} (ha : a ∈ s) (hb : b ∈ s) (hab : a ≠ b) :
    bigSep s Φ = iprop(Φ a ∗ Φ b ∗ bigSep ((s.erase a).erase b) Φ) := by
  rw [SparseCore.bigSep_erase' ha, SparseCore.bigSep_erase' (Finset.mem_erase.mpr ⟨fun e => hab e.symm, hb⟩)]

omit [FloatOps F] in
theorem range18_split : (Finset.range 18) = insert 0 (insert 1 (xSet 0)) := by decide

theorem xRange_split (v0 : valid L 0) (v1 : valid L 1) :
    bigSep (Finset.range 18) (xP d L fx) = iprop(xtPiece d L fx 0 ∗ xtPiece d L fx 1 ∗ bigSep (xSet 0) (xP d L fx)) := by
  rw [range18_split, SparseCore.bigSep_insert' (by decide), SparseCore.bigSep_insert' (by decide)]
  unfold xP; rw [if_pos v0, if_pos v1]
omit [FloatOps F] in
theorem oSet_zero : oSet 0 = Finset.range 18 := by decide

theorem inSlot_pos {a : Memref sig .scVector .vmem S8x3200 .f32} {sm : DmaSem sig} {n : ℕ} (v : valid L n) :
    inSlot d L fx a sm n = iprop(∃ g, Transfers.Flight countersEmb (thr d L) (SemLoc.dma sm) (default : HIx 22) NN
      iprop((a.view.loc (thr d L) ↦{fullShare} g) ∗ xtPiece d L fx n)) := by unfold inSlot; rw [if_pos v]
theorem inSlot_neg {a : Memref sig .scVector .vmem S8x3200 .f32} {sm : DmaSem sig} {n : ℕ} (v : ¬ valid L n) :
    inSlot d L fx a sm n = iprop((∃ g, a.view.loc (thr d L) ↦{fullShare} g) ∗ semVal (thr d L, SemLoc.dma sm) 0) := by
  unfold inSlot; rw [if_neg v]
theorem outSlot_pos {a : Memref sig .scVector .vmem S25600 .f32} {sm : DmaSem sig} {m : ℕ} (h : 2 ≤ m ∧ valid L (m - 2)) :
    outSlot (F := F) d L a sm m = iprop(∃ g, Transfers.Flight countersEmb (thr d L) (SemLoc.dma sm) (default : HIx 22) NN
        iprop(oPiece (F := F) d L (m - 2) ∗ ((stg a).view.loc (thr d L) ↦[(stg a).view.set]{fullShare} g))
      ∗ (a.view.loc (thr d L) ↦[Finset.univ \ (stg a).view.set]{fullShare} g)) := by unfold outSlot; rw [if_pos h]
theorem outSlot_neg {a : Memref sig .scVector .vmem S25600 .f32} {sm : DmaSem sig} {m : ℕ} (h : ¬ (2 ≤ m ∧ valid L (m - 2))) :
    outSlot (F := F) d L a sm m = iprop((∃ g, a.view.loc (thr d L) ↦{fullShare} g) ∗ semVal (thr d L, SemLoc.dma sm) 0) := by
  unfold outSlot; rw [if_neg h]

/-- A fetch in flight, its source window spelt by any offsets equal to piece `n`'s, fills the fetch slot for `n`. -/
theorem fl_in {off : Fin 2 → ℕ} {n : ℕ} (h : off = ![16, pos L n]) (p : ∀ a, off a + S1x3200.size a ≤ S22x1600000.size a) (v : valid L n)
    (a : Memref sig .scVector .vmem S8x3200 .f32) (sm : DmaSem sig) :
    (iprop(∃ g, Transfers.Flight countersEmb (thr d L) (SemLoc.dma sm) (default : HIx 22) NN
        iprop((a.view.loc (thr d L) ↦{fullShare} g)
          ∗ (((xtW).slice (Rect.unit (s := S22x1600000) off S1x3200.size p) (fun _ => rfl)).view.loc (thr d L)
              ↦[((xtW).slice (Rect.unit (s := S22x1600000) off S1x3200.size p) (fun _ => rfl)).view.set]{fullShare} fx))) : sProp 𝕄)
      ⊢ inSlot d L fx a sm n := by
  rw [inSlot_pos d L fx v]
  iintro ⟨%g, H⟩
  have hD : (iprop((a.view.loc (thr d L) ↦{fullShare} g)
          ∗ (((xtW).slice (Rect.unit (s := S22x1600000) off S1x3200.size p) (fun _ => rfl)).view.loc (thr d L)
              ↦[((xtW).slice (Rect.unit (s := S22x1600000) off S1x3200.size p) (fun _ => rfl)).view.set]{fullShare} fx)) : sProp 𝕄)
      ⊢ iprop((a.view.loc (thr d L) ↦{fullShare} g) ∗ xtPiece d L fx n) := by
    iintro ⟨H1, H2⟩
    isplitl [H1]; · iexact H1
    iapply (Entails.of_eq (in_congr d L h p (in_inb L n) fx)); iexact H2
  iexists g
  iapply (Transfers.Flight_mono countersEmb (thr d L) hD); iexact H

/-- A write-out in flight, its destination window spelt by any offsets equal to piece `n`'s, with the rest of the
    staging buffer, fills the write-out slot for `n + 2`. -/
theorem fl_out {off : Fin 1 → ℕ} {n : ℕ} (h : off = ![pos L n]) (p : ∀ a, off a + S3200.size a ≤ S1600000.size a) (v : valid L n)
    (a : Memref sig .scVector .vmem S25600 .f32) (sm : DmaSem sig) :
    (iprop(∃ (f : Buf (Elt F) ((oW).view.loc (thr d L))) (g : Buf (Elt F) (a.view.loc (thr d L))), Transfers.Flight countersEmb (thr d L) (SemLoc.dma sm) (default : HIx 22) NN
        iprop((((oW).slice (Rect.unit (s := S1600000) off S3200.size p) (fun _ => rfl)).view.loc (thr d L)
              ↦[((oW).slice (Rect.unit (s := S1600000) off S3200.size p) (fun _ => rfl)).view.set]{fullShare} f)
          ∗ ((stg a).view.loc (thr d L) ↦[(stg a).view.set]{fullShare} g))
        ∗ (a.view.loc (thr d L) ↦[Finset.univ \ (stg a).view.set]{fullShare} g)) : sProp 𝕄)
      ⊢ outSlot (F := F) d L a sm (n + 2) := by
  rw [outSlot_pos (F := F) d L (m := n + 2) ⟨by omega, by simpa using v⟩]
  iintro ⟨%f, %g, H, R⟩
  have hD : (iprop((((oW).slice (Rect.unit (s := S1600000) off S3200.size p) (fun _ => rfl)).view.loc (thr d L)
              ↦[((oW).slice (Rect.unit (s := S1600000) off S3200.size p) (fun _ => rfl)).view.set]{fullShare} f)
          ∗ ((stg a).view.loc (thr d L) ↦[(stg a).view.set]{fullShare} g)) : sProp 𝕄)
      ⊢ iprop(oPiece (F := F) d L (n + 2 - 2) ∗ ((stg a).view.loc (thr d L) ↦[(stg a).view.set]{fullShare} g)) := by
    rw [Nat.add_sub_cancel]
    iintro ⟨H1, H2⟩
    isplitl [H1]
    · iexists f; iapply (Entails.of_eq (out_congr d L h p (out_inb L n) f)); iexact H1
    · iexact H2
  iexists g
  isplitl [H]
  · iapply (Transfers.Flight_mono countersEmb (thr d L) hD); iexact H
  · iexact R

/-! The pieces outside the slots, from one trip to the next. -/
def xCore (k : ℕ) : Finset ℕ := (Finset.range 18).filter fun n => n ≠ 2 * k ∧ n ≠ 2 * k + 1 ∧ n ≠ 2 * k + 2 ∧ n ≠ 2 * k + 3
def oCore (k : ℕ) : Finset ℕ := (Finset.range 18).filter fun n => n + 2 ≠ 2 * k ∧ n + 2 ≠ 2 * k + 1 ∧ n ≠ 2 * k ∧ n ≠ 2 * k + 1

omit [FloatOps F] in
theorem xSet_out (Φ : ℕ → sProp 𝕄) (k : ℕ) (hk : k < 8) : bigSep (xSet k) Φ = iprop(Φ (2 * k + 2) ∗ Φ (2 * k + 3) ∗ bigSep (xCore k) Φ) := by
  have e : ((xSet k).erase (2 * k + 2)).erase (2 * k + 3) = xCore k := by
    ext n; simp only [xSet, xCore, Finset.mem_erase, Finset.mem_filter, Finset.mem_range]; omega
  rw [← e]; exact two_out (by simp only [xSet, Finset.mem_filter, Finset.mem_range]; omega) (by simp only [xSet, Finset.mem_filter, Finset.mem_range]; omega) (by omega)
omit [FloatOps F] in
theorem xSet_in (Φ : ℕ → sProp 𝕄) (k : ℕ) (hk : k < 8) : bigSep (xSet (k + 1)) Φ = iprop(Φ (2 * k) ∗ Φ (2 * k + 1) ∗ bigSep (xCore k) Φ) := by
  have e : ((xSet (k + 1)).erase (2 * k)).erase (2 * k + 1) = xCore k := by
    ext n; simp only [xSet, xCore, Finset.mem_erase, Finset.mem_filter, Finset.mem_range]; omega
  rw [← e]; exact two_out (by simp only [xSet, Finset.mem_filter, Finset.mem_range]; omega) (by simp only [xSet, Finset.mem_filter, Finset.mem_range]; omega) (by omega)
omit [FloatOps F] in
theorem oSet_out (Φ : ℕ → sProp 𝕄) (k : ℕ) (hk : k < 8) : bigSep (oSet k) Φ = iprop(Φ (2 * k) ∗ Φ (2 * k + 1) ∗ bigSep (oCore k) Φ) := by
  have e : ((oSet k).erase (2 * k)).erase (2 * k + 1) = oCore k := by
    ext n; simp only [oSet, oCore, Finset.mem_erase, Finset.mem_filter, Finset.mem_range]; omega
  rw [← e]; exact two_out (by simp only [oSet, Finset.mem_filter, Finset.mem_range]; omega) (by simp only [oSet, Finset.mem_filter, Finset.mem_range]; omega) (by omega)
omit [FloatOps F] in
theorem oSet_in (Φ : ℕ → sProp 𝕄) (k : ℕ) (hk : k < 8) (hk1 : 1 ≤ k) :
    bigSep (oSet (k + 1)) Φ = iprop(Φ (2 * k - 2) ∗ Φ (2 * k - 1) ∗ bigSep (oCore k) Φ) := by
  have e : ((oSet (k + 1)).erase (2 * k - 2)).erase (2 * k - 1) = oCore k := by
    ext n; simp only [oSet, oCore, Finset.mem_erase, Finset.mem_filter, Finset.mem_range]; omega
  rw [← e]; exact two_out (by simp only [oSet, Finset.mem_filter, Finset.mem_range]; omega) (by simp only [oSet, Finset.mem_filter, Finset.mem_range]; omega) (by omega)

theorem xP_pos {n : ℕ} (v : valid L n) : xP d L fx n = xtPiece d L fx n := if_pos v
theorem oP_pos {n : ℕ} (v : valid L n) : oP (F := F) d L n = oPiece (F := F) d L n := if_pos v
theorem xP_neg {n : ℕ} (v : ¬ valid L n) : xP d L fx n = iprop(emp) := if_neg v
theorem oP_neg {n : ℕ} (v : ¬ valid L n) : oP (F := F) d L n = iprop(emp) := if_neg v

/-- Piece `n` of the result at its final contents: row 16 of the transposed argument. -/
def oQ (n : ℕ) : sProp 𝕄 :=
  if valid L n then (outM L n).view.loc (thr d L) ↦[(outM L n).view.set]{fullShare} (Cert.Spec.row 16 fx) else iprop(emp)

/-- What a tile is handed for the call: its pieces of row 16 of the transposed argument, at the argument's contents, and
    its pieces of the result at some contents. What it hands back: the same pieces of the argument, and its pieces of
    the result holding the row. -/
def goRes : sProp 𝕄 := iprop(bigSep (Finset.range 18) (xP d L fx) ∗ bigSep (Finset.range 18) (oP (F := F) d L))
def tdRes : sProp 𝕄 := iprop(bigSep (Finset.range 18) (xP d L fx) ∗ bigSep (Finset.range 18) (oQ d L fx))

end Tile

end Cert.Proof.TileK16

end
-- ==== Proof.TileK17Defs.lean ====
/-
  One vector subcore's task of copy kernel 17 (counting from 0): definitions. The task moves its pieces of row 17 of the
  transposed argument (pieces of 3200 consecutive elements, piece number 2·s + c + 32·n for the subcore (c, s) and
  n = 0, 1, … while that number is below 500) into the flat result: each piece is fetched into a staging row, copied
  16 lanes at a time into a flat staging buffer, and written out, two pieces in flight at a time. Here: the pieces as
  memrefs, the program's own spellings of them, the printed conditions as facts about the trip, the two slots' states
  between trips, and what the tile holds outside the slots.
-/
import proofs.«206869_g37898791420194_cont_8to1_b_558_20_alg».proof.Defs
import Idealize.ShloMosaic.Lib.SparseCore.Launch
import Idealize.ShloMosaic.Lib.StableHlo.Run
import Idealize.ShloMosaic.Lib.Pipeline.Kit
import Idealize.ShloMosaic.Lib.Tactic
import proofs.«206869_g37898791420194_cont_8to1_b_558_20_alg».proof.Proof.Gen.KernelIdeal
import proofs.«206869_g37898791420194_cont_8to1_b_558_20_alg».proof.Proof.Gen.KernelIdeal.Skeleton
import proofs.«206869_g37898791420194_cont_8to1_b_558_20_alg».proof.Proof.Spec

noncomputable section

namespace Cert.Proof.TileK17

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

abbrev ΛP : Labels := Pipeline.Sig Λ₀ (Fin 0) fun p => (pcfgs (F := F) p).Adm
abbrev K : SparseCore.Cfg τ sig (ΛP (F := F)) 22 := sc (F := F)
abbrev 𝒱₀ : Variants := Variants.none

abbrev UH : Type := URounds (GSem nD τ sig) ℕ
abbrev UU : Type := UH × Counters

local notation "𝕄" => MT nD τ sig (HIx 22) (Elt F) ℕ UU ℕ

local notation "xtW" => (Memref.whole Cert.KernelIdeal.main_v0_scv : Memref Cert.KernelIdeal.sig Kind.scVector Space.hbm Cert.KernelIdeal.S22x1600000 EltTy.f32)
local notation "oW" => (Memref.whole Cert.KernelIdeal.main_v18_scv : Memref Cert.KernelIdeal.sig Kind.scVector Space.hbm Cert.KernelIdeal.S1600000 EltTy.f32)
local notation "a4" => (Memref.whole Cert.KernelIdeal.cc17_scratch0 : Memref Cert.KernelIdeal.sig Kind.scVector Space.vmem Cert.KernelIdeal.S8x3200 EltTy.f32)
local notation "a5" => (Memref.whole Cert.KernelIdeal.cc17_scratch1 : Memref Cert.KernelIdeal.sig Kind.scVector Space.vmem Cert.KernelIdeal.S8x3200 EltTy.f32)
local notation "a6" => (Memref.whole Cert.KernelIdeal.cc17_scratch2 : Memref Cert.KernelIdeal.sig Kind.scVector Space.vmem Cert.KernelIdeal.S25600 EltTy.f32)
local notation "a7" => (Memref.whole Cert.KernelIdeal.cc17_scratch3 : Memref Cert.KernelIdeal.sig Kind.scVector Space.vmem Cert.KernelIdeal.S25600 EltTy.f32)

variable [FloatOps F]

section Tile

variable (d : Dev nD) (L : grid17.Coords)

abbrev cV (L : grid17.Coords) : Fin τ.nSC := (L 0).castLE hcore17
abbrev jV (L : grid17.Coords) : Fin τ.nSub := (L 1).castLE hsub17
abbrev thr (d : Dev nD) (L : grid17.Coords) : Thread nD τ := V d (cV L) (jV L)

/-- The tile's number 2·s + c, and whether it has sixteen pieces (numbers below 20) or fifteen. -/
abbrev wid (L : grid17.Coords) : ℕ := 2 * (L 1).val + (L 0).val
abbrev big (L : grid17.Coords) : Prop := wid L < 20

omit [FloatOps F] in
theorem wid_lt (L : grid17.Coords) : wid L < 32 := by
  have h0 : (L 0).val < 2 := (L 0).isLt
  have h1 : (L 1).val < 16 := (L 1).isLt
  unfold wid; omega

/-- Piece `n` of the tile exists: `n < 15`, or `n = 15` on a tile with sixteen pieces. It is the piece number
    `wid + 32·n < 500` of the row. -/
def valid (L : grid17.Coords) (n : ℕ) : Prop := n < 15 ∨ (n = 15 ∧ big L)
instance (L : grid17.Coords) (n : ℕ) : Decidable (valid L n) := by unfold valid big; infer_instance

omit [FloatOps F] in
theorem valid_iff (L : grid17.Coords) (n : ℕ) : valid L n ↔ wid L + 32 * n < 500 := by
  have := wid_lt L; unfold valid big; omega

/-- Where piece `n` starts in the row (clamped to the last piece of the row, so that the rectangle is in bounds for
    every `n`; for a valid piece the clamp is idle). -/
abbrev pos (L : grid17.Coords) (n : ℕ) : ℕ := 3200 * min (wid L + 32 * n) 499

omit [FloatOps F] in
theorem pos_valid {L : grid17.Coords} {n : ℕ} (h : valid L n) : pos L n = 6400 * (L 1).val + 3200 * (L 0).val + 102400 * n := by
  have := (valid_iff L n).mp h; unfold pos wid at *; omega

omit [FloatOps F] in
theorem in_inb (L : grid17.Coords) (n : ℕ) : ∀ a, (![17, pos L n] : Fin 2 → ℕ) a + S1x3200.size a ≤ S22x1600000.size a := by
  intro a; fin_cases a
  · show 17 + 1 ≤ 22; omega
  · show pos L n + 3200 ≤ 1600000; unfold pos; omega
omit [FloatOps F] in
theorem out_inb (L : grid17.Coords) (n : ℕ) : ∀ a, (![pos L n] : Fin 1 → ℕ) a + S3200.size a ≤ S1600000.size a := by
  intro a; fin_cases a
  show pos L n + 3200 ≤ 1600000; unfold pos; omega

/-- Piece `n` of row 17 of the transposed argument, and piece `n` of the flat result, as memrefs of the tile. -/
abbrev inM (L : grid17.Coords) (n : ℕ) : Memref sig .scVector .hbm S1x3200 .f32 :=
  (xtW).slice (Rect.unit (s := S22x1600000) ![17, pos L n] S1x3200.size (in_inb L n)) (fun _ => rfl)
abbrev outM (L : grid17.Coords) (n : ℕ) : Memref sig .scVector .hbm S3200 .f32 :=
  (oW).slice (Rect.unit (s := S1600000) ![pos L n] S3200.size (out_inb L n)) (fun _ => rfl)

/-! The program's own slices are these pieces: by the closed forms of its offset functions. -/

omit [FloatOps F] in
theorem off2 {a b : ℕ} (h : a = b) : (![17, a] : Fin 2 → ℕ) = ![17, b] := by rw [h]
omit [FloatOps F] in
theorem off1' {a b : ℕ} (h : a = b) : (![a] : Fin 1 → ℕ) = ![b] := by rw [h]

omit [FloatOps F] in
theorem off_in0 (L : grid17.Coords) (h : valid L 0) : k17_off1 L 0#32 = ![17, pos L 0] :=
  (k17_off1_eq L 0).trans (off2 (by rw [pos_valid h]; simp))
omit [FloatOps F] in
theorem off_in1 (L : grid17.Coords) (h : valid L 1) : k17_off1 L 32#32 = ![17, pos L 1] :=
  (k17_off1_eq L 1).trans (off2 (by rw [pos_valid h]; simp))
omit [FloatOps F] in
theorem off_6 (L : grid17.Coords) (t : Fin k17_t1_loop.trips) (h : valid L (2 * t.val + 2)) : k17_off6 L t = ![17, pos L (2 * t.val + 2)] :=
  (k17_off6_eq L t).trans (off2 (by rw [pos_valid h]; omega))
omit [FloatOps F] in
theorem off_11 (L : grid17.Coords) (t : Fin k17_t1_loop.trips) (h : valid L (2 * t.val + 3)) : k17_off11 L t = ![17, pos L (2 * t.val + 3)] :=
  (k17_off11_eq L t).trans (off2 (by rw [pos_valid h]; omega))
omit [FloatOps F] in
theorem off_5 (L : grid17.Coords) (t : Fin k17_t1_loop.trips) (h : valid L (2 * t.val)) : k17_off5 L t = ![pos L (2 * t.val)] :=
  (k17_off5_eq L t).trans (off1' (by rw [pos_valid h]; omega))
omit [FloatOps F] in
theorem off_10 (L : grid17.Coords) (t : Fin k17_t1_loop.trips) (h : valid L (2 * t.val + 1)) : k17_off10 L t = ![pos L (2 * t.val + 1)] :=
  (k17_off10_eq L t).trans (off1' (by rw [pos_valid h]; omega))

/-- Holding a 1 × 3200 window of the transposed argument, or a 3200 window of the result, by exactly its elements
    says the same whichever way the window's offsets are spelt. -/
theorem in_congr {off off' : Fin 2 → ℕ} (h : off = off') (p : ∀ a, off a + S1x3200.size a ≤ S22x1600000.size a)
    (p' : ∀ a, off' a + S1x3200.size a ≤ S22x1600000.size a) (f : Buf (Elt F) ((xtW).view.loc (thr d L))) :
    (((xtW).slice (Rect.unit (s := S22x1600000) off S1x3200.size p) (fun _ => rfl)).view.loc (thr d L)
        ↦[((xtW).slice (Rect.unit (s := S22x1600000) off S1x3200.size p) (fun _ => rfl)).view.set]{fullShare} f : sProp 𝕄)
      = (((xtW).slice (Rect.unit (s := S22x1600000) off' S1x3200.size p') (fun _ => rfl)).view.loc (thr d L)
        ↦[((xtW).slice (Rect.unit (s := S22x1600000) off' S1x3200.size p') (fun _ => rfl)).view.set]{fullShare} f) := by
  subst h; rfl
theorem out_congr {off off' : Fin 1 → ℕ} (h : off = off') (p : ∀ a, off a + S3200.size a ≤ S1600000.size a)
    (p' : ∀ a, off' a + S3200.size a ≤ S1600000.size a) (f : Buf (Elt F) ((oW).view.loc (thr d L))) :
    (((oW).slice (Rect.unit (s := S1600000) off S3200.size p) (fun _ => rfl)).view.loc (thr d L)
        ↦[((oW).slice (Rect.unit (s := S1600000) off S3200.size p) (fun _ => rfl)).view.set]{fullShare} f : sProp 𝕄)
      = (((oW).slice (Rect.unit (s := S1600000) off' S3200.size p') (fun _ => rfl)).view.loc (thr d L)
        ↦[((oW).slice (Rect.unit (s := S1600000) off' S3200.size p') (fun _ => rfl)).view.set]{fullShare} f) := by
  subst h; rfl

/-! The printed conditions, as facts about the trip and the tile. -/

omit [FloatOps F] in
theorem trips1 : k17_t1_loop.trips = 8 := by decide
omit [FloatOps F] in
theorem cond1_iff : ∀ (t : Fin k17_t1_loop.trips), k17_cond1 t = 1#1 ↔ 1 ≤ t.val := by decide +kernel
omit [FloatOps F] in
theorem cond2_iff : ∀ (L : grid17.Coords) (t : Fin k17_t1_loop.trips), k17_cond2 L t = 1#1 := by decide +kernel
omit [FloatOps F] in
theorem cond3_iff : ∀ (L : grid17.Coords) (t : Fin k17_t1_loop.trips), k17_cond3 L t = 1#1 ↔ t.val ≤ 6 := by decide +kernel
omit [FloatOps F] in
theorem cond4_iff : ∀ (t : Fin k17_t1_loop.trips), k17_cond4 t = 1#1 ↔ 1 ≤ t.val := by decide +kernel
omit [FloatOps F] in
theorem cond5_iff : ∀ (L : grid17.Coords) (t : Fin k17_t1_loop.trips), k17_cond5 L t = 1#1 ↔ (t.val ≤ 6 ∨ big L) := by decide +kernel
omit [FloatOps F] in
theorem cond6_iff : ∀ (L : grid17.Coords) (t : Fin k17_t1_loop.trips), k17_cond6 L t = 1#1 ↔ (t.val ≤ 5 ∨ (t.val = 6 ∧ big L)) := by decide +kernel
omit [FloatOps F] in
theorem cond7_iff : ∀ (L : grid17.Coords), k17_cond7 L = 1#1 := by decide +kernel
omit [FloatOps F] in
theorem cond8_iff : ∀ (L : grid17.Coords), k17_cond8 L = 1#1 ↔ big L := by decide +kernel

variable (O : CellTallies nD τ sig (HIx 22)) (W : Waits sig (HIx 22))
variable (fx : Buf (Elt F) ((xtW).view.loc (thr d L)))

abbrev NN : ℕ := 102400

/-- The 3200-element window of a flat staging buffer that a piece is written out from. -/
abbrev stg (a : Memref sig .scVector .vmem S25600 .f32) : Memref sig .scVector .vmem S3200 .f32 :=
  a.slice (Rect.unit (s := S25600) ![0] S3200.size inb_S25600_S3200_0) (fun _ => rfl)

/-- Piece `n` of the argument row held by exactly its elements, at the argument's contents; piece `n` of the result
    held by exactly its elements, at some contents. -/
abbrev xtPiece (n : ℕ) : sProp 𝕄 := (inM L n).view.loc (thr d L) ↦[(inM L n).view.set]{fullShare} fx
abbrev oPiece (n : ℕ) : sProp 𝕄 := iprop(∃ f, (outM L n).view.loc (thr d L) ↦[(outM L n).view.set]{fullShare} f)

/-- The lane-copy loop of a slot: the staging row keeps its contents, the flat staging buffer holds some contents. -/
def laneInv0 (g4 : Buf (Elt F) ((a4).view.loc (thr d L))) (_ : ℕ) (_ : PUnit) : sProp 𝕄 :=
  iprop(((a4).view.loc (thr d L) ↦{fullShare} g4) ∗ (∃ g, (a6).view.loc (thr d L) ↦{fullShare} g))
def laneInv1 (g5 : Buf (Elt F) ((a5).view.loc (thr d L))) (_ : ℕ) (_ : PUnit) : sProp 𝕄 :=
  iprop(((a5).view.loc (thr d L) ↦{fullShare} g5) ∗ (∃ g, (a7).view.loc (thr d L) ↦{fullShare} g))

/-- A fetch slot before trip work on piece `n`: the piece's fetch in flight (it will hand back the staging row at some
    contents, and the piece), or, when there is no such piece, the slot idle. -/
def inSlot (a : Memref sig .scVector .vmem S8x3200 .f32) (sm : DmaSem sig) (n : ℕ) : sProp 𝕄 :=
  if valid L n then
    iprop(∃ g, Transfers.Flight countersEmb (thr d L) (SemLoc.dma sm) (default : HIx 22) NN
      iprop((a.view.loc (thr d L) ↦{fullShare} g) ∗ xtPiece d L fx n))
  else iprop((∃ g, a.view.loc (thr d L) ↦{fullShare} g) ∗ semVal (thr d L, SemLoc.dma sm) 0)

/-- A write-out slot before trip work on piece `m`: piece `m - 2`'s write-out in flight (it will hand back that piece
    of the result at some contents, and the staging window), the rest of the staging buffer beside it; or idle. -/
def outSlot (a : Memref sig .scVector .vmem S25600 .f32) (sm : DmaSem sig) (m : ℕ) : sProp 𝕄 :=
  if 2 ≤ m ∧ valid L (m - 2) then
    iprop(∃ g, Transfers.Flight countersEmb (thr d L) (SemLoc.dma sm) (default : HIx 22) NN
        iprop(oPiece d L (m - 2) ∗ ((stg a).view.loc (thr d L) ↦[(stg a).view.set]{fullShare} g))
      ∗ (a.view.loc (thr d L) ↦[Finset.univ \ (stg a).view.set]{fullShare} g))
  else iprop((∃ g, a.view.loc (thr d L) ↦{fullShare} g) ∗ semVal (thr d L, SemLoc.dma sm) 0)

/-- Piece `n` when it exists, nothing otherwise. -/
def xP (n : ℕ) : sProp 𝕄 := if valid L n then xtPiece d L fx n else iprop(emp)
def oP (n : ℕ) : sProp 𝕄 := if valid L n then oPiece d L n else iprop(emp)

/-- What the tile holds outside the slots before trip `t`: every piece of the argument row but those being fetched
    (`2t`, `2t + 1`), every piece of the result but those being written out (`2t - 2`, `2t - 1`). -/
def xSet (t : ℕ) : Finset ℕ := (Finset.range 18).filter fun n => n ≠ 2 * t ∧ n ≠ 2 * t + 1
def oSet (t : ℕ) : Finset ℕ := (Finset.range 18).filter fun n => n + 2 ≠ 2 * t ∧ n + 2 ≠ 2 * t + 1

def inv (t : ℕ) (_ : PUnit) : sProp 𝕄 :=
  iprop(Transfers.MayWaits (thr d L) (none : HIx 22) O
    ∗ (∃ W', ⌜∀ p ∈ W', p ∈ W ∨ p.2 = none⌝ ∗ owes (thr d L) O W')
    ∗ bigSep (xSet t) (xP d L fx) ∗ bigSep (oSet t) (oP d L)
    ∗ inSlot d L fx a4 cc17_scratch4.sem (2 * t) ∗ outSlot d L a6 cc17_scratch6.sem (2 * t)
    ∗ inSlot d L fx a5 cc17_scratch5.sem (2 * t + 1) ∗ outSlot d L a7 cc17_scratch7.sem (2 * t + 1))

omit [FloatOps F] in
theorem two_out {Φ : ℕ → sProp 𝕄} {s : Finset ℕ} {a b : ℕ} (ha : a ∈ s) (hb : b ∈ s) (hab : a ≠ b) :
    bigSep s Φ = iprop(Φ a ∗ Φ b ∗ bigSep ((s.erase a).erase b) Φ) := by
  rw [SparseCore.bigSep_erase' ha, SparseCore.bigSep_erase' (Finset.mem_erase.mpr ⟨fun e => hab e.symm, hb⟩)]

omit [FloatOps F] in
theorem range18_split : (Finset.range 18) = insert 0 (insert 1 (xSet 0)) := by decide

theorem xRange_split (v0 : valid L 0) (v1 : valid L 1) :
    bigSep (Finset.range 18) (xP d L fx) = iprop(xtPiece d L fx 0 ∗ xtPiece d L fx 1 ∗ bigSep (xSet 0) (xP d L fx)) := by
  rw [range18_split, SparseCore.bigSep_insert' (by decide), SparseCore.bigSep_insert' (by decide)]
  unfold xP; rw [if_pos v0, if_pos v1]
omit [FloatOps F] in
theorem oSet_zero : oSet 0 = Finset.range 18 := by decide

theorem inSlot_pos {a : Memref sig .scVector .vmem S8x3200 .f32} {sm : DmaSem sig} {n : ℕ} (v : valid L n) :
    inSlot d L fx a sm n = iprop(∃ g, Transfers.Flight countersEmb (thr d L) (SemLoc.dma sm) (default : HIx 22) NN
      iprop((a.view.loc (thr d L) ↦{fullShare} g) ∗ xtPiece d L fx n)) := by unfold inSlot; rw [if_pos v]
theorem inSlot_neg {a : Memref sig .scVector .vmem S8x3200 .f32} {sm : DmaSem sig} {n : ℕ} (v : ¬ valid L n) :
    inSlot d L fx a sm n = iprop((∃ g, a.view.loc (thr d L) ↦{fullShare} g) ∗ semVal (thr d L, SemLoc.dma sm) 0) := by
  unfold inSlot; rw [if_neg v]
theorem outSlot_pos {a : Memref sig .scVector .vmem S25600 .f32} {sm : DmaSem sig} {m : ℕ} (h : 2 ≤ m ∧ valid L (m - 2)) :
    outSlot (F := F) d L a sm m = iprop(∃ g, Transfers.Flight countersEmb (thr d L) (SemLoc.dma sm) (default : HIx 22) NN
        iprop(oPiece (F := F) d L (m - 2) ∗ ((stg a).view.loc (thr d L) ↦[(stg a).view.set]{fullShare} g))
      ∗ (a.view.loc (thr d L) ↦[Finset.univ \ (stg a).view.set]{fullShare} g)) := by unfold outSlot; rw [if_pos h]
theorem outSlot_neg {a : Memref sig .scVector .vmem S25600 .f32} {sm : DmaSem sig} {m : ℕ} (h : ¬ (2 ≤ m ∧ valid L (m - 2))) :
    outSlot (F := F) d L a sm m = iprop((∃ g, a.view.loc (thr d L) ↦{fullShare} g) ∗ semVal (thr d L, SemLoc.dma sm) 0) := by
  unfold outSlot; rw [if_neg h]

/-- A fetch in flight, its source window spelt by any offsets equal to piece `n`'s, fills the fetch slot for `n`. -/
theorem fl_in {off : Fin 2 → ℕ} {n : ℕ} (h : off = ![17, pos L n]) (p : ∀ a, off a + S1x3200.size a ≤ S22x1600000.size a) (v : valid L n)
    (a : Memref sig .scVector .vmem S8x3200 .f32) (sm : DmaSem sig) :
    (iprop(∃ g, Transfers.Flight countersEmb (thr d L) (SemLoc.dma sm) (default : HIx 22) NN
        iprop((a.view.loc (thr d L) ↦{fullShare} g)
          ∗ (((xtW).slice (Rect.unit (s := S22x1600000) off S1x3200.size p) (fun _ => rfl)).view.loc (thr d L)
              ↦[((xtW).slice (Rect.unit (s := S22x1600000) off S1x3200.size p) (fun _ => rfl)).view.set]{fullShare} fx))) : sProp 𝕄)
      ⊢ inSlot d L fx a sm n := by
  rw [inSlot_pos d L fx v]
  iintro ⟨%g, H⟩
  have hD : (iprop((a.view.loc (thr d L) ↦{fullShare} g)
          ∗ (((xtW).slice (Rect.unit (s := S22x1600000) off S1x3200.size p) (fun _ => rfl)).view.loc (thr d L)
              ↦[((xtW).slice (Rect.unit (s := S22x1600000) off S1x3200.size p) (fun _ => rfl)).view.set]{fullShare} fx)) : sProp 𝕄)
      ⊢ iprop((a.view.loc (thr d L) ↦{fullShare} g) ∗ xtPiece d L fx n) := by
    iintro ⟨H1, H2⟩
    isplitl [H1]; · iexact H1
    iapply (Entails.of_eq (in_congr d L h p (in_inb L n) fx)); iexact H2
  iexists g
  iapply (Transfers.Flight_mono countersEmb (thr d L) hD); iexact H

/-- A write-out in flight, its destination window spelt by any offsets equal to piece `n`'s, with the rest of the
    staging buffer, fills the write-out slot for `n + 2`. -/
theorem fl_out {off : Fin 1 → ℕ} {n : ℕ} (h : off = ![pos L n]) (p : ∀ a, off a + S3200.size a ≤ S1600000.size a) (v : valid L n)
    (a : Memref sig .scVector .vmem S25600 .f32) (sm : DmaSem sig) :
    (iprop(∃ (f : Buf (Elt F) ((oW).view.loc (thr d L))) (g : Buf (Elt F) (a.view.loc (thr d L))), Transfers.Flight countersEmb (thr d L) (SemLoc.dma sm) (default : HIx 22) NN
        iprop((((oW).slice (Rect.unit (s := S1600000) off S3200.size p) (fun _ => rfl)).view.loc (thr d L)
              ↦[((oW).slice (Rect.unit (s := S1600000) off S3200.size p) (fun _ => rfl)).view.set]{fullShare} f)
          ∗ ((stg a).view.loc (thr d L) ↦[(stg a).view.set]{fullShare} g))
        ∗ (a.view.loc (thr d L) ↦[Finset.univ \ (stg a).view.set]{fullShare} g)) : sProp 𝕄)
      ⊢ outSlot (F := F) d L a sm (n + 2) := by
  rw [outSlot_pos (F := F) d L (m := n + 2) ⟨by omega, by simpa using v⟩]
  iintro ⟨%f, %g, H, R⟩
  have hD : (iprop((((oW).slice (Rect.unit (s := S1600000) off S3200.size p) (fun _ => rfl)).view.loc (thr d L)
              ↦[((oW).slice (Rect.unit (s := S1600000) off S3200.size p) (fun _ => rfl)).view.set]{fullShare} f)
          ∗ ((stg a).view.loc (thr d L) ↦[(stg a).view.set]{fullShare} g)) : sProp 𝕄)
      ⊢ iprop(oPiece (F := F) d L (n + 2 - 2) ∗ ((stg a).view.loc (thr d L) ↦[(stg a).view.set]{fullShare} g)) := by
    rw [Nat.add_sub_cancel]
    iintro ⟨H1, H2⟩
    isplitl [H1]
    · iexists f; iapply (Entails.of_eq (out_congr d L h p (out_inb L n) f)); iexact H1
    · iexact H2
  iexists g
  isplitl [H]
  · iapply (Transfers.Flight_mono countersEmb (thr d L) hD); iexact H
  · iexact R

/-! The pieces outside the slots, from one trip to the next. -/
def xCore (k : ℕ) : Finset ℕ := (Finset.range 18).filter fun n => n ≠ 2 * k ∧ n ≠ 2 * k + 1 ∧ n ≠ 2 * k + 2 ∧ n ≠ 2 * k + 3
def oCore (k : ℕ) : Finset ℕ := (Finset.range 18).filter fun n => n + 2 ≠ 2 * k ∧ n + 2 ≠ 2 * k + 1 ∧ n ≠ 2 * k ∧ n ≠ 2 * k + 1

omit [FloatOps F] in
theorem xSet_out (Φ : ℕ → sProp 𝕄) (k : ℕ) (hk : k < 8) : bigSep (xSet k) Φ = iprop(Φ (2 * k + 2) ∗ Φ (2 * k + 3) ∗ bigSep (xCore k) Φ) := by
  have e : ((xSet k).erase (2 * k + 2)).erase (2 * k + 3) = xCore k := by
    ext n; simp only [xSet, xCore, Finset.mem_erase, Finset.mem_filter, Finset.mem_range]; omega
  rw [← e]; exact two_out (by simp only [xSet, Finset.mem_filter, Finset.mem_range]; omega) (by simp only [xSet, Finset.mem_filter, Finset.mem_range]; omega) (by omega)
omit [FloatOps F] in
theorem xSet_in (Φ : ℕ → sProp 𝕄) (k : ℕ) (hk : k < 8) : bigSep (xSet (k + 1)) Φ = iprop(Φ (2 * k) ∗ Φ (2 * k + 1) ∗ bigSep (xCore k) Φ) := by
  have e : ((xSet (k + 1)).erase (2 * k)).erase (2 * k + 1) = xCore k := by
    ext n; simp only [xSet, xCore, Finset.mem_erase, Finset.mem_filter, Finset.mem_range]; omega
  rw [← e]; exact two_out (by simp only [xSet, Finset.mem_filter, Finset.mem_range]; omega) (by simp only [xSet, Finset.mem_filter, Finset.mem_range]; omega) (by omega)
omit [FloatOps F] in
theorem oSet_out (Φ : ℕ → sProp 𝕄) (k : ℕ) (hk : k < 8) : bigSep (oSet k) Φ = iprop(Φ (2 * k) ∗ Φ (2 * k + 1) ∗ bigSep (oCore k) Φ) := by
  have e : ((oSet k).erase (2 * k)).erase (2 * k + 1) = oCore k := by
    ext n; simp only [oSet, oCore, Finset.mem_erase, Finset.mem_filter, Finset.mem_range]; omega
  rw [← e]; exact two_out (by simp only [oSet, Finset.mem_filter, Finset.mem_range]; omega) (by simp only [oSet, Finset.mem_filter, Finset.mem_range]; omega) (by omega)
omit [FloatOps F] in
theorem oSet_in (Φ : ℕ → sProp 𝕄) (k : ℕ) (hk : k < 8) (hk1 : 1 ≤ k) :
    bigSep (oSet (k + 1)) Φ = iprop(Φ (2 * k - 2) ∗ Φ (2 * k - 1) ∗ bigSep (oCore k) Φ) := by
  have e : ((oSet (k + 1)).erase (2 * k - 2)).erase (2 * k - 1) = oCore k := by
    ext n; simp only [oSet, oCore, Finset.mem_erase, Finset.mem_filter, Finset.mem_range]; omega
  rw [← e]; exact two_out (by simp only [oSet, Finset.mem_filter, Finset.mem_range]; omega) (by simp only [oSet, Finset.mem_filter, Finset.mem_range]; omega) (by omega)

theorem xP_pos {n : ℕ} (v : valid L n) : xP d L fx n = xtPiece d L fx n := if_pos v
theorem oP_pos {n : ℕ} (v : valid L n) : oP (F := F) d L n = oPiece (F := F) d L n := if_pos v
theorem xP_neg {n : ℕ} (v : ¬ valid L n) : xP d L fx n = iprop(emp) := if_neg v
theorem oP_neg {n : ℕ} (v : ¬ valid L n) : oP (F := F) d L n = iprop(emp) := if_neg v

/-- Piece `n` of the result at its final contents: row 17 of the transposed argument. -/
def oQ (n : ℕ) : sProp 𝕄 :=
  if valid L n then (outM L n).view.loc (thr d L) ↦[(outM L n).view.set]{fullShare} (Cert.Spec.row 17 fx) else iprop(emp)

/-- What a tile is handed for the call: its pieces of row 17 of the transposed argument, at the argument's contents, and
    its pieces of the result at some contents. What it hands back: the same pieces of the argument, and its pieces of
    the result holding the row. -/
def goRes : sProp 𝕄 := iprop(bigSep (Finset.range 18) (xP d L fx) ∗ bigSep (Finset.range 18) (oP (F := F) d L))
def tdRes : sProp 𝕄 := iprop(bigSep (Finset.range 18) (xP d L fx) ∗ bigSep (Finset.range 18) (oQ d L fx))

end Tile

end Cert.Proof.TileK17

end
-- ==== Proof.TileK18Defs.lean ====
/-
  One vector subcore's task of copy kernel 18 (counting from 0): definitions. The task moves its pieces of row 18 of the
  transposed argument (pieces of 3200 consecutive elements, piece number 2·s + c + 32·n for the subcore (c, s) and
  n = 0, 1, … while that number is below 500) into the flat result: each piece is fetched into a staging row, copied
  16 lanes at a time into a flat staging buffer, and written out, two pieces in flight at a time. Here: the pieces as
  memrefs, the program's own spellings of them, the printed conditions as facts about the trip, the two slots' states
  between trips, and what the tile holds outside the slots.
-/
import proofs.«206869_g37898791420194_cont_8to1_b_558_20_alg».proof.Defs
import Idealize.ShloMosaic.Lib.SparseCore.Launch
import Idealize.ShloMosaic.Lib.StableHlo.Run
import Idealize.ShloMosaic.Lib.Pipeline.Kit
import Idealize.ShloMosaic.Lib.Tactic
import proofs.«206869_g37898791420194_cont_8to1_b_558_20_alg».proof.Proof.Gen.KernelIdeal
import proofs.«206869_g37898791420194_cont_8to1_b_558_20_alg».proof.Proof.Gen.KernelIdeal.Skeleton
import proofs.«206869_g37898791420194_cont_8to1_b_558_20_alg».proof.Proof.Spec

noncomputable section

namespace Cert.Proof.TileK18

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

abbrev ΛP : Labels := Pipeline.Sig Λ₀ (Fin 0) fun p => (pcfgs (F := F) p).Adm
abbrev K : SparseCore.Cfg τ sig (ΛP (F := F)) 22 := sc (F := F)
abbrev 𝒱₀ : Variants := Variants.none

abbrev UH : Type := URounds (GSem nD τ sig) ℕ
abbrev UU : Type := UH × Counters

local notation "𝕄" => MT nD τ sig (HIx 22) (Elt F) ℕ UU ℕ

local notation "xtW" => (Memref.whole Cert.KernelIdeal.main_v0_scv : Memref Cert.KernelIdeal.sig Kind.scVector Space.hbm Cert.KernelIdeal.S22x1600000 EltTy.f32)
local notation "oW" => (Memref.whole Cert.KernelIdeal.main_v19_scv : Memref Cert.KernelIdeal.sig Kind.scVector Space.hbm Cert.KernelIdeal.S1600000 EltTy.f32)
local notation "a4" => (Memref.whole Cert.KernelIdeal.cc18_scratch0 : Memref Cert.KernelIdeal.sig Kind.scVector Space.vmem Cert.KernelIdeal.S8x3200 EltTy.f32)
local notation "a5" => (Memref.whole Cert.KernelIdeal.cc18_scratch1 : Memref Cert.KernelIdeal.sig Kind.scVector Space.vmem Cert.KernelIdeal.S8x3200 EltTy.f32)
local notation "a6" => (Memref.whole Cert.KernelIdeal.cc18_scratch2 : Memref Cert.KernelIdeal.sig Kind.scVector Space.vmem Cert.KernelIdeal.S25600 EltTy.f32)
local notation "a7" => (Memref.whole Cert.KernelIdeal.cc18_scratch3 : Memref Cert.KernelIdeal.sig Kind.scVector Space.vmem Cert.KernelIdeal.S25600 EltTy.f32)

variable [FloatOps F]

section Tile

variable (d : Dev nD) (L : grid18.Coords)

abbrev cV (L : grid18.Coords) : Fin τ.nSC := (L 0).castLE hcore18
abbrev jV (L : grid18.Coords) : Fin τ.nSub := (L 1).castLE hsub18
abbrev thr (d : Dev nD) (L : grid18.Coords) : Thread nD τ := V d (cV L) (jV L)

/-- The tile's number 2·s + c, and whether it has sixteen pieces (numbers below 20) or fifteen. -/
abbrev wid (L : grid18.Coords) : ℕ := 2 * (L 1).val + (L 0).val
abbrev big (L : grid18.Coords) : Prop := wid L < 20

omit [FloatOps F] in
theorem wid_lt (L : grid18.Coords) : wid L < 32 := by
  have h0 : (L 0).val < 2 := (L 0).isLt
  have h1 : (L 1).val < 16 := (L 1).isLt
  unfold wid; omega

/-- Piece `n` of the tile exists: `n < 15`, or `n = 15` on a tile with sixteen pieces. It is the piece number
    `wid + 32·n < 500` of the row. -/
def valid (L : grid18.Coords) (n : ℕ) : Prop := n < 15 ∨ (n = 15 ∧ big L)
instance (L : grid18.Coords) (n : ℕ) : Decidable (valid L n) := by unfold valid big; infer_instance

omit [FloatOps F] in
theorem valid_iff (L : grid18.Coords) (n : ℕ) : valid L n ↔ wid L + 32 * n < 500 := by
  have := wid_lt L; unfold valid big; omega

/-- Where piece `n` starts in the row (clamped to the last piece of the row, so that the rectangle is in bounds for
    every `n`; for a valid piece the clamp is idle). -/
abbrev pos (L : grid18.Coords) (n : ℕ) : ℕ := 3200 * min (wid L + 32 * n) 499

omit [FloatOps F] in
theorem pos_valid {L : grid18.Coords} {n : ℕ} (h : valid L n) : pos L n = 6400 * (L 1).val + 3200 * (L 0).val + 102400 * n := by
  have := (valid_iff L n).mp h; unfold pos wid at *; omega

omit [FloatOps F] in
theorem in_inb (L : grid18.Coords) (n : ℕ) : ∀ a, (![18, pos L n] : Fin 2 → ℕ) a + S1x3200.size a ≤ S22x1600000.size a := by
  intro a; fin_cases a
  · show 18 + 1 ≤ 22; omega
  · show pos L n + 3200 ≤ 1600000; unfold pos; omega
omit [FloatOps F] in
theorem out_inb (L : grid18.Coords) (n : ℕ) : ∀ a, (![pos L n] : Fin 1 → ℕ) a + S3200.size a ≤ S1600000.size a := by
  intro a; fin_cases a
  show pos L n + 3200 ≤ 1600000; unfold pos; omega

/-- Piece `n` of row 18 of the transposed argument, and piece `n` of the flat result, as memrefs of the tile. -/
abbrev inM (L : grid18.Coords) (n : ℕ) : Memref sig .scVector .hbm S1x3200 .f32 :=
  (xtW).slice (Rect.unit (s := S22x1600000) ![18, pos L n] S1x3200.size (in_inb L n)) (fun _ => rfl)
abbrev outM (L : grid18.Coords) (n : ℕ) : Memref sig .scVector .hbm S3200 .f32 :=
  (oW).slice (Rect.unit (s := S1600000) ![pos L n] S3200.size (out_inb L n)) (fun _ => rfl)

/-! The program's own slices are these pieces: by the closed forms of its offset functions. -/

omit [FloatOps F] in
theorem off2 {a b : ℕ} (h : a = b) : (![18, a] : Fin 2 → ℕ) = ![18, b] := by rw [h]
omit [FloatOps F] in
theorem off1' {a b : ℕ} (h : a = b) : (![a] : Fin 1 → ℕ) = ![b] := by rw [h]

omit [FloatOps F] in
theorem off_in0 (L : grid18.Coords) (h : valid L 0) : k18_off1 L 0#32 = ![18, pos L 0] :=
  (k18_off1_eq L 0).trans (off2 (by rw [pos_valid h]; simp))
omit [FloatOps F] in
theorem off_in1 (L : grid18.Coords) (h : valid L 1) : k18_off1 L 32#32 = ![18, pos L 1] :=
  (k18_off1_eq L 1).trans (off2 (by rw [pos_valid h]; simp))
omit [FloatOps F] in
theorem off_6 (L : grid18.Coords) (t : Fin k18_t1_loop.trips) (h : valid L (2 * t.val + 2)) : k18_off6 L t = ![18, pos L (2 * t.val + 2)] :=
  (k18_off6_eq L t).trans (off2 (by rw [pos_valid h]; omega))
omit [FloatOps F] in
theorem off_11 (L : grid18.Coords) (t : Fin k18_t1_loop.trips) (h : valid L (2 * t.val + 3)) : k18_off11 L t = ![18, pos L (2 * t.val + 3)] :=
  (k18_off11_eq L t).trans (off2 (by rw [pos_valid h]; omega))
omit [FloatOps F] in
theorem off_5 (L : grid18.Coords) (t : Fin k18_t1_loop.trips) (h : valid L (2 * t.val)) : k18_off5 L t = ![pos L (2 * t.val)] :=
  (k18_off5_eq L t).trans (off1' (by rw [pos_valid h]; omega))
omit [FloatOps F] in
theorem off_10 (L : grid18.Coords) (t : Fin k18_t1_loop.trips) (h : valid L (2 * t.val + 1)) : k18_off10 L t = ![pos L (2 * t.val + 1)] :=
  (k18_off10_eq L t).trans (off1' (by rw [pos_valid h]; omega))

/-- Holding a 1 × 3200 window of the transposed argument, or a 3200 window of the result, by exactly its elements
    says the same whichever way the window's offsets are spelt. -/
theorem in_congr {off off' : Fin 2 → ℕ} (h : off = off') (p : ∀ a, off a + S1x3200.size a ≤ S22x1600000.size a)
    (p' : ∀ a, off' a + S1x3200.size a ≤ S22x1600000.size a) (f : Buf (Elt F) ((xtW).view.loc (thr d L))) :
    (((xtW).slice (Rect.unit (s := S22x1600000) off S1x3200.size p) (fun _ => rfl)).view.loc (thr d L)
        ↦[((xtW).slice (Rect.unit (s := S22x1600000) off S1x3200.size p) (fun _ => rfl)).view.set]{fullShare} f : sProp 𝕄)
      = (((xtW).slice (Rect.unit (s := S22x1600000) off' S1x3200.size p') (fun _ => rfl)).view.loc (thr d L)
        ↦[((xtW).slice (Rect.unit (s := S22x1600000) off' S1x3200.size p') (fun _ => rfl)).view.set]{fullShare} f) := by
  subst h; rfl
theorem out_congr {off off' : Fin 1 → ℕ} (h : off = off') (p : ∀ a, off a + S3200.size a ≤ S1600000.size a)
    (p' : ∀ a, off' a + S3200.size a ≤ S1600000.size a) (f : Buf (Elt F) ((oW).view.loc (thr d L))) :
    (((oW).slice (Rect.unit (s := S1600000) off S3200.size p) (fun _ => rfl)).view.loc (thr d L)
        ↦[((oW).slice (Rect.unit (s := S1600000) off S3200.size p) (fun _ => rfl)).view.set]{fullShare} f : sProp 𝕄)
      = (((oW).slice (Rect.unit (s := S1600000) off' S3200.size p') (fun _ => rfl)).view.loc (thr d L)
        ↦[((oW).slice (Rect.unit (s := S1600000) off' S3200.size p') (fun _ => rfl)).view.set]{fullShare} f) := by
  subst h; rfl

/-! The printed conditions, as facts about the trip and the tile. -/

omit [FloatOps F] in
theorem trips1 : k18_t1_loop.trips = 8 := by decide
omit [FloatOps F] in
theorem cond1_iff : ∀ (t : Fin k18_t1_loop.trips), k18_cond1 t = 1#1 ↔ 1 ≤ t.val := by decide +kernel
omit [FloatOps F] in
theorem cond2_iff : ∀ (L : grid18.Coords) (t : Fin k18_t1_loop.trips), k18_cond2 L t = 1#1 := by decide +kernel
omit [FloatOps F] in
theorem cond3_iff : ∀ (L : grid18.Coords) (t : Fin k18_t1_loop.trips), k18_cond3 L t = 1#1 ↔ t.val ≤ 6 := by decide +kernel
omit [FloatOps F] in
theorem cond4_iff : ∀ (t : Fin k18_t1_loop.trips), k18_cond4 t = 1#1 ↔ 1 ≤ t.val := by decide +kernel
omit [FloatOps F] in
theorem cond5_iff : ∀ (L : grid18.Coords) (t : Fin k18_t1_loop.trips), k18_cond5 L t = 1#1 ↔ (t.val ≤ 6 ∨ big L) := by decide +kernel
omit [FloatOps F] in
theorem cond6_iff : ∀ (L : grid18.Coords) (t : Fin k18_t1_loop.trips), k18_cond6 L t = 1#1 ↔ (t.val ≤ 5 ∨ (t.val = 6 ∧ big L)) := by decide +kernel
omit [FloatOps F] in
theorem cond7_iff : ∀ (L : grid18.Coords), k18_cond7 L = 1#1 := by decide +kernel
omit [FloatOps F] in
theorem cond8_iff : ∀ (L : grid18.Coords), k18_cond8 L = 1#1 ↔ big L := by decide +kernel

variable (O : CellTallies nD τ sig (HIx 22)) (W : Waits sig (HIx 22))
variable (fx : Buf (Elt F) ((xtW).view.loc (thr d L)))

abbrev NN : ℕ := 102400

/-- The 3200-element window of a flat staging buffer that a piece is written out from. -/
abbrev stg (a : Memref sig .scVector .vmem S25600 .f32) : Memref sig .scVector .vmem S3200 .f32 :=
  a.slice (Rect.unit (s := S25600) ![0] S3200.size inb_S25600_S3200_0) (fun _ => rfl)

/-- Piece `n` of the argument row held by exactly its elements, at the argument's contents; piece `n` of the result
    held by exactly its elements, at some contents. -/
abbrev xtPiece (n : ℕ) : sProp 𝕄 := (inM L n).view.loc (thr d L) ↦[(inM L n).view.set]{fullShare} fx
abbrev oPiece (n : ℕ) : sProp 𝕄 := iprop(∃ f, (outM L n).view.loc (thr d L) ↦[(outM L n).view.set]{fullShare} f)

/-- The lane-copy loop of a slot: the staging row keeps its contents, the flat staging buffer holds some contents. -/
def laneInv0 (g4 : Buf (Elt F) ((a4).view.loc (thr d L))) (_ : ℕ) (_ : PUnit) : sProp 𝕄 :=
  iprop(((a4).view.loc (thr d L) ↦{fullShare} g4) ∗ (∃ g, (a6).view.loc (thr d L) ↦{fullShare} g))
def laneInv1 (g5 : Buf (Elt F) ((a5).view.loc (thr d L))) (_ : ℕ) (_ : PUnit) : sProp 𝕄 :=
  iprop(((a5).view.loc (thr d L) ↦{fullShare} g5) ∗ (∃ g, (a7).view.loc (thr d L) ↦{fullShare} g))

/-- A fetch slot before trip work on piece `n`: the piece's fetch in flight (it will hand back the staging row at some
    contents, and the piece), or, when there is no such piece, the slot idle. -/
def inSlot (a : Memref sig .scVector .vmem S8x3200 .f32) (sm : DmaSem sig) (n : ℕ) : sProp 𝕄 :=
  if valid L n then
    iprop(∃ g, Transfers.Flight countersEmb (thr d L) (SemLoc.dma sm) (default : HIx 22) NN
      iprop((a.view.loc (thr d L) ↦{fullShare} g) ∗ xtPiece d L fx n))
  else iprop((∃ g, a.view.loc (thr d L) ↦{fullShare} g) ∗ semVal (thr d L, SemLoc.dma sm) 0)

/-- A write-out slot before trip work on piece `m`: piece `m - 2`'s write-out in flight (it will hand back that piece
    of the result at some contents, and the staging window), the rest of the staging buffer beside it; or idle. -/
def outSlot (a : Memref sig .scVector .vmem S25600 .f32) (sm : DmaSem sig) (m : ℕ) : sProp 𝕄 :=
  if 2 ≤ m ∧ valid L (m - 2) then
    iprop(∃ g, Transfers.Flight countersEmb (thr d L) (SemLoc.dma sm) (default : HIx 22) NN
        iprop(oPiece d L (m - 2) ∗ ((stg a).view.loc (thr d L) ↦[(stg a).view.set]{fullShare} g))
      ∗ (a.view.loc (thr d L) ↦[Finset.univ \ (stg a).view.set]{fullShare} g))
  else iprop((∃ g, a.view.loc (thr d L) ↦{fullShare} g) ∗ semVal (thr d L, SemLoc.dma sm) 0)

/-- Piece `n` when it exists, nothing otherwise. -/
def xP (n : ℕ) : sProp 𝕄 := if valid L n then xtPiece d L fx n else iprop(emp)
def oP (n : ℕ) : sProp 𝕄 := if valid L n then oPiece d L n else iprop(emp)

/-- What the tile holds outside the slots before trip `t`: every piece of the argument row but those being fetched
    (`2t`, `2t + 1`), every piece of the result but those being written out (`2t - 2`, `2t - 1`). -/
def xSet (t : ℕ) : Finset ℕ := (Finset.range 18).filter fun n => n ≠ 2 * t ∧ n ≠ 2 * t + 1
def oSet (t : ℕ) : Finset ℕ := (Finset.range 18).filter fun n => n + 2 ≠ 2 * t ∧ n + 2 ≠ 2 * t + 1

def inv (t : ℕ) (_ : PUnit) : sProp 𝕄 :=
  iprop(Transfers.MayWaits (thr d L) (none : HIx 22) O
    ∗ (∃ W', ⌜∀ p ∈ W', p ∈ W ∨ p.2 = none⌝ ∗ owes (thr d L) O W')
    ∗ bigSep (xSet t) (xP d L fx) ∗ bigSep (oSet t) (oP d L)
    ∗ inSlot d L fx a4 cc18_scratch4.sem (2 * t) ∗ outSlot d L a6 cc18_scratch6.sem (2 * t)
    ∗ inSlot d L fx a5 cc18_scratch5.sem (2 * t + 1) ∗ outSlot d L a7 cc18_scratch7.sem (2 * t + 1))

omit [FloatOps F] in
theorem two_out {Φ : ℕ → sProp 𝕄} {s : Finset ℕ} {a b : ℕ} (ha : a ∈ s) (hb : b ∈ s) (hab : a ≠ b) :
    bigSep s Φ = iprop(Φ a ∗ Φ b ∗ bigSep ((s.erase a).erase b) Φ) := by
  rw [SparseCore.bigSep_erase' ha, SparseCore.bigSep_erase' (Finset.mem_erase.mpr ⟨fun e => hab e.symm, hb⟩)]

omit [FloatOps F] in
theorem range18_split : (Finset.range 18) = insert 0 (insert 1 (xSet 0)) := by decide

theorem xRange_split (v0 : valid L 0) (v1 : valid L 1) :
    bigSep (Finset.range 18) (xP d L fx) = iprop(xtPiece d L fx 0 ∗ xtPiece d L fx 1 ∗ bigSep (xSet 0) (xP d L fx)) := by
  rw [range18_split, SparseCore.bigSep_insert' (by decide), SparseCore.bigSep_insert' (by decide)]
  unfold xP; rw [if_pos v0, if_pos v1]
omit [FloatOps F] in
theorem oSet_zero : oSet 0 = Finset.range 18 := by decide

theorem inSlot_pos {a : Memref sig .scVector .vmem S8x3200 .f32} {sm : DmaSem sig} {n : ℕ} (v : valid L n) :
    inSlot d L fx a sm n = iprop(∃ g, Transfers.Flight countersEmb (thr d L) (SemLoc.dma sm) (default : HIx 22) NN
      iprop((a.view.loc (thr d L) ↦{fullShare} g) ∗ xtPiece d L fx n)) := by unfold inSlot; rw [if_pos v]
theorem inSlot_neg {a : Memref sig .scVector .vmem S8x3200 .f32} {sm : DmaSem sig} {n : ℕ} (v : ¬ valid L n) :
    inSlot d L fx a sm n = iprop((∃ g, a.view.loc (thr d L) ↦{fullShare} g) ∗ semVal (thr d L, SemLoc.dma sm) 0) := by
  unfold inSlot; rw [if_neg v]
theorem outSlot_pos {a : Memref sig .scVector .vmem S25600 .f32} {sm : DmaSem sig} {m : ℕ} (h : 2 ≤ m ∧ valid L (m - 2)) :
    outSlot (F := F) d L a sm m = iprop(∃ g, Transfers.Flight countersEmb (thr d L) (SemLoc.dma sm) (default : HIx 22) NN
        iprop(oPiece (F := F) d L (m - 2) ∗ ((stg a).view.loc (thr d L) ↦[(stg a).view.set]{fullShare} g))
      ∗ (a.view.loc (thr d L) ↦[Finset.univ \ (stg a).view.set]{fullShare} g)) := by unfold outSlot; rw [if_pos h]
theorem outSlot_neg {a : Memref sig .scVector .vmem S25600 .f32} {sm : DmaSem sig} {m : ℕ} (h : ¬ (2 ≤ m ∧ valid L (m - 2))) :
    outSlot (F := F) d L a sm m = iprop((∃ g, a.view.loc (thr d L) ↦{fullShare} g) ∗ semVal (thr d L, SemLoc.dma sm) 0) := by
  unfold outSlot; rw [if_neg h]

/-- A fetch in flight, its source window spelt by any offsets equal to piece `n`'s, fills the fetch slot for `n`. -/
theorem fl_in {off : Fin 2 → ℕ} {n : ℕ} (h : off = ![18, pos L n]) (p : ∀ a, off a + S1x3200.size a ≤ S22x1600000.size a) (v : valid L n)
    (a : Memref sig .scVector .vmem S8x3200 .f32) (sm : DmaSem sig) :
    (iprop(∃ g, Transfers.Flight countersEmb (thr d L) (SemLoc.dma sm) (default : HIx 22) NN
        iprop((a.view.loc (thr d L) ↦{fullShare} g)
          ∗ (((xtW).slice (Rect.unit (s := S22x1600000) off S1x3200.size p) (fun _ => rfl)).view.loc (thr d L)
              ↦[((xtW).slice (Rect.unit (s := S22x1600000) off S1x3200.size p) (fun _ => rfl)).view.set]{fullShare} fx))) : sProp 𝕄)
      ⊢ inSlot d L fx a sm n := by
  rw [inSlot_pos d L fx v]
  iintro ⟨%g, H⟩
  have hD : (iprop((a.view.loc (thr d L) ↦{fullShare} g)
          ∗ (((xtW).slice (Rect.unit (s := S22x1600000) off S1x3200.size p) (fun _ => rfl)).view.loc (thr d L)
              ↦[((xtW).slice (Rect.unit (s := S22x1600000) off S1x3200.size p) (fun _ => rfl)).view.set]{fullShare} fx)) : sProp 𝕄)
      ⊢ iprop((a.view.loc (thr d L) ↦{fullShare} g) ∗ xtPiece d L fx n) := by
    iintro ⟨H1, H2⟩
    isplitl [H1]; · iexact H1
    iapply (Entails.of_eq (in_congr d L h p (in_inb L n) fx)); iexact H2
  iexists g
  iapply (Transfers.Flight_mono countersEmb (thr d L) hD); iexact H

/-- A write-out in flight, its destination window spelt by any offsets equal to piece `n`'s, with the rest of the
    staging buffer, fills the write-out slot for `n + 2`. -/
theorem fl_out {off : Fin 1 → ℕ} {n : ℕ} (h : off = ![pos L n]) (p : ∀ a, off a + S3200.size a ≤ S1600000.size a) (v : valid L n)
    (a : Memref sig .scVector .vmem S25600 .f32) (sm : DmaSem sig) :
    (iprop(∃ (f : Buf (Elt F) ((oW).view.loc (thr d L))) (g : Buf (Elt F) (a.view.loc (thr d L))), Transfers.Flight countersEmb (thr d L) (SemLoc.dma sm) (default : HIx 22) NN
        iprop((((oW).slice (Rect.unit (s := S1600000) off S3200.size p) (fun _ => rfl)).view.loc (thr d L)
              ↦[((oW).slice (Rect.unit (s := S1600000) off S3200.size p) (fun _ => rfl)).view.set]{fullShare} f)
          ∗ ((stg a).view.loc (thr d L) ↦[(stg a).view.set]{fullShare} g))
        ∗ (a.view.loc (thr d L) ↦[Finset.univ \ (stg a).view.set]{fullShare} g)) : sProp 𝕄)
      ⊢ outSlot (F := F) d L a sm (n + 2) := by
  rw [outSlot_pos (F := F) d L (m := n + 2) ⟨by omega, by simpa using v⟩]
  iintro ⟨%f, %g, H, R⟩
  have hD : (iprop((((oW).slice (Rect.unit (s := S1600000) off S3200.size p) (fun _ => rfl)).view.loc (thr d L)
              ↦[((oW).slice (Rect.unit (s := S1600000) off S3200.size p) (fun _ => rfl)).view.set]{fullShare} f)
          ∗ ((stg a).view.loc (thr d L) ↦[(stg a).view.set]{fullShare} g)) : sProp 𝕄)
      ⊢ iprop(oPiece (F := F) d L (n + 2 - 2) ∗ ((stg a).view.loc (thr d L) ↦[(stg a).view.set]{fullShare} g)) := by
    rw [Nat.add_sub_cancel]
    iintro ⟨H1, H2⟩
    isplitl [H1]
    · iexists f; iapply (Entails.of_eq (out_congr d L h p (out_inb L n) f)); iexact H1
    · iexact H2
  iexists g
  isplitl [H]
  · iapply (Transfers.Flight_mono countersEmb (thr d L) hD); iexact H
  · iexact R

/-! The pieces outside the slots, from one trip to the next. -/
def xCore (k : ℕ) : Finset ℕ := (Finset.range 18).filter fun n => n ≠ 2 * k ∧ n ≠ 2 * k + 1 ∧ n ≠ 2 * k + 2 ∧ n ≠ 2 * k + 3
def oCore (k : ℕ) : Finset ℕ := (Finset.range 18).filter fun n => n + 2 ≠ 2 * k ∧ n + 2 ≠ 2 * k + 1 ∧ n ≠ 2 * k ∧ n ≠ 2 * k + 1

omit [FloatOps F] in
theorem xSet_out (Φ : ℕ → sProp 𝕄) (k : ℕ) (hk : k < 8) : bigSep (xSet k) Φ = iprop(Φ (2 * k + 2) ∗ Φ (2 * k + 3) ∗ bigSep (xCore k) Φ) := by
  have e : ((xSet k).erase (2 * k + 2)).erase (2 * k + 3) = xCore k := by
    ext n; simp only [xSet, xCore, Finset.mem_erase, Finset.mem_filter, Finset.mem_range]; omega
  rw [← e]; exact two_out (by simp only [xSet, Finset.mem_filter, Finset.mem_range]; omega) (by simp only [xSet, Finset.mem_filter, Finset.mem_range]; omega) (by omega)
omit [FloatOps F] in
theorem xSet_in (Φ : ℕ → sProp 𝕄) (k : ℕ) (hk : k < 8) : bigSep (xSet (k + 1)) Φ = iprop(Φ (2 * k) ∗ Φ (2 * k + 1) ∗ bigSep (xCore k) Φ) := by
  have e : ((xSet (k + 1)).erase (2 * k)).erase (2 * k + 1) = xCore k := by
    ext n; simp only [xSet, xCore, Finset.mem_erase, Finset.mem_filter, Finset.mem_range]; omega
  rw [← e]; exact two_out (by simp only [xSet, Finset.mem_filter, Finset.mem_range]; omega) (by simp only [xSet, Finset.mem_filter, Finset.mem_range]; omega) (by omega)
omit [FloatOps F] in
theorem oSet_out (Φ : ℕ → sProp 𝕄) (k : ℕ) (hk : k < 8) : bigSep (oSet k) Φ = iprop(Φ (2 * k) ∗ Φ (2 * k + 1) ∗ bigSep (oCore k) Φ) := by
  have e : ((oSet k).erase (2 * k)).erase (2 * k + 1) = oCore k := by
    ext n; simp only [oSet, oCore, Finset.mem_erase, Finset.mem_filter, Finset.mem_range]; omega
  rw [← e]; exact two_out (by simp only [oSet, Finset.mem_filter, Finset.mem_range]; omega) (by simp only [oSet, Finset.mem_filter, Finset.mem_range]; omega) (by omega)
omit [FloatOps F] in
theorem oSet_in (Φ : ℕ → sProp 𝕄) (k : ℕ) (hk : k < 8) (hk1 : 1 ≤ k) :
    bigSep (oSet (k + 1)) Φ = iprop(Φ (2 * k - 2) ∗ Φ (2 * k - 1) ∗ bigSep (oCore k) Φ) := by
  have e : ((oSet (k + 1)).erase (2 * k - 2)).erase (2 * k - 1) = oCore k := by
    ext n; simp only [oSet, oCore, Finset.mem_erase, Finset.mem_filter, Finset.mem_range]; omega
  rw [← e]; exact two_out (by simp only [oSet, Finset.mem_filter, Finset.mem_range]; omega) (by simp only [oSet, Finset.mem_filter, Finset.mem_range]; omega) (by omega)

theorem xP_pos {n : ℕ} (v : valid L n) : xP d L fx n = xtPiece d L fx n := if_pos v
theorem oP_pos {n : ℕ} (v : valid L n) : oP (F := F) d L n = oPiece (F := F) d L n := if_pos v
theorem xP_neg {n : ℕ} (v : ¬ valid L n) : xP d L fx n = iprop(emp) := if_neg v
theorem oP_neg {n : ℕ} (v : ¬ valid L n) : oP (F := F) d L n = iprop(emp) := if_neg v

/-- Piece `n` of the result at its final contents: row 18 of the transposed argument. -/
def oQ (n : ℕ) : sProp 𝕄 :=
  if valid L n then (outM L n).view.loc (thr d L) ↦[(outM L n).view.set]{fullShare} (Cert.Spec.row 18 fx) else iprop(emp)

/-- What a tile is handed for the call: its pieces of row 18 of the transposed argument, at the argument's contents, and
    its pieces of the result at some contents. What it hands back: the same pieces of the argument, and its pieces of
    the result holding the row. -/
def goRes : sProp 𝕄 := iprop(bigSep (Finset.range 18) (xP d L fx) ∗ bigSep (Finset.range 18) (oP (F := F) d L))
def tdRes : sProp 𝕄 := iprop(bigSep (Finset.range 18) (xP d L fx) ∗ bigSep (Finset.range 18) (oQ d L fx))

end Tile

end Cert.Proof.TileK18

end
-- ==== Proof.TileK19Defs.lean ====
/-
  One vector subcore's task of copy kernel 19 (counting from 0): definitions. The task moves its pieces of row 19 of the
  transposed argument (pieces of 3200 consecutive elements, piece number 2·s + c + 32·n for the subcore (c, s) and
  n = 0, 1, … while that number is below 500) into the flat result: each piece is fetched into a staging row, copied
  16 lanes at a time into a flat staging buffer, and written out, two pieces in flight at a time. Here: the pieces as
  memrefs, the program's own spellings of them, the printed conditions as facts about the trip, the two slots' states
  between trips, and what the tile holds outside the slots.
-/
import proofs.«206869_g37898791420194_cont_8to1_b_558_20_alg».proof.Defs
import Idealize.ShloMosaic.Lib.SparseCore.Launch
import Idealize.ShloMosaic.Lib.StableHlo.Run
import Idealize.ShloMosaic.Lib.Pipeline.Kit
import Idealize.ShloMosaic.Lib.Tactic
import proofs.«206869_g37898791420194_cont_8to1_b_558_20_alg».proof.Proof.Gen.KernelIdeal
import proofs.«206869_g37898791420194_cont_8to1_b_558_20_alg».proof.Proof.Gen.KernelIdeal.Skeleton
import proofs.«206869_g37898791420194_cont_8to1_b_558_20_alg».proof.Proof.Spec

noncomputable section

namespace Cert.Proof.TileK19

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

abbrev ΛP : Labels := Pipeline.Sig Λ₀ (Fin 0) fun p => (pcfgs (F := F) p).Adm
abbrev K : SparseCore.Cfg τ sig (ΛP (F := F)) 22 := sc (F := F)
abbrev 𝒱₀ : Variants := Variants.none

abbrev UH : Type := URounds (GSem nD τ sig) ℕ
abbrev UU : Type := UH × Counters

local notation "𝕄" => MT nD τ sig (HIx 22) (Elt F) ℕ UU ℕ

local notation "xtW" => (Memref.whole Cert.KernelIdeal.main_v0_scv : Memref Cert.KernelIdeal.sig Kind.scVector Space.hbm Cert.KernelIdeal.S22x1600000 EltTy.f32)
local notation "oW" => (Memref.whole Cert.KernelIdeal.main_v20_scv : Memref Cert.KernelIdeal.sig Kind.scVector Space.hbm Cert.KernelIdeal.S1600000 EltTy.f32)
local notation "a4" => (Memref.whole Cert.KernelIdeal.cc19_scratch0 : Memref Cert.KernelIdeal.sig Kind.scVector Space.vmem Cert.KernelIdeal.S8x3200 EltTy.f32)
local notation "a5" => (Memref.whole Cert.KernelIdeal.cc19_scratch1 : Memref Cert.KernelIdeal.sig Kind.scVector Space.vmem Cert.KernelIdeal.S8x3200 EltTy.f32)
local notation "a6" => (Memref.whole Cert.KernelIdeal.cc19_scratch2 : Memref Cert.KernelIdeal.sig Kind.scVector Space.vmem Cert.KernelIdeal.S25600 EltTy.f32)
local notation "a7" => (Memref.whole Cert.KernelIdeal.cc19_scratch3 : Memref Cert.KernelIdeal.sig Kind.scVector Space.vmem Cert.KernelIdeal.S25600 EltTy.f32)

variable [FloatOps F]

section Tile

variable (d : Dev nD) (L : grid19.Coords)

abbrev cV (L : grid19.Coords) : Fin τ.nSC := (L 0).castLE hcore19
abbrev jV (L : grid19.Coords) : Fin τ.nSub := (L 1).castLE hsub19
abbrev thr (d : Dev nD) (L : grid19.Coords) : Thread nD τ := V d (cV L) (jV L)

/-- The tile's number 2·s + c, and whether it has sixteen pieces (numbers below 20) or fifteen. -/
abbrev wid (L : grid19.Coords) : ℕ := 2 * (L 1).val + (L 0).val
abbrev big (L : grid19.Coords) : Prop := wid L < 20

omit [FloatOps F] in
theorem wid_lt (L : grid19.Coords) : wid L < 32 := by
  have h0 : (L 0).val < 2 := (L 0).isLt
  have h1 : (L 1).val < 16 := (L 1).isLt
  unfold wid; omega

/-- Piece `n` of the tile exists: `n < 15`, or `n = 15` on a tile with sixteen pieces. It is the piece number
    `wid + 32·n < 500` of the row. -/
def valid (L : grid19.Coords) (n : ℕ) : Prop := n < 15 ∨ (n = 15 ∧ big L)
instance (L : grid19.Coords) (n : ℕ) : Decidable (valid L n) := by unfold valid big; infer_instance

omit [FloatOps F] in
theorem valid_iff (L : grid19.Coords) (n : ℕ) : valid L n ↔ wid L + 32 * n < 500 := by
  have := wid_lt L; unfold valid big; omega

/-- Where piece `n` starts in the row (clamped to the last piece of the row, so that the rectangle is in bounds for
    every `n`; for a valid piece the clamp is idle). -/
abbrev pos (L : grid19.Coords) (n : ℕ) : ℕ := 3200 * min (wid L + 32 * n) 499

omit [FloatOps F] in
theorem pos_valid {L : grid19.Coords} {n : ℕ} (h : valid L n) : pos L n = 6400 * (L 1).val + 3200 * (L 0).val + 102400 * n := by
  have := (valid_iff L n).mp h; unfold pos wid at *; omega

omit [FloatOps F] in
theorem in_inb (L : grid19.Coords) (n : ℕ) : ∀ a, (![19, pos L n] : Fin 2 → ℕ) a + S1x3200.size a ≤ S22x1600000.size a := by
  intro a; fin_cases a
  · show 19 + 1 ≤ 22; omega
  · show pos L n + 3200 ≤ 1600000; unfold pos; omega
omit [FloatOps F] in
theorem out_inb (L : grid19.Coords) (n : ℕ) : ∀ a, (![pos L n] : Fin 1 → ℕ) a + S3200.size a ≤ S1600000.size a := by
  intro a; fin_cases a
  show pos L n + 3200 ≤ 1600000; unfold pos; omega

/-- Piece `n` of row 19 of the transposed argument, and piece `n` of the flat result, as memrefs of the tile. -/
abbrev inM (L : grid19.Coords) (n : ℕ) : Memref sig .scVector .hbm S1x3200 .f32 :=
  (xtW).slice (Rect.unit (s := S22x1600000) ![19, pos L n] S1x3200.size (in_inb L n)) (fun _ => rfl)
abbrev outM (L : grid19.Coords) (n : ℕ) : Memref sig .scVector .hbm S3200 .f32 :=
  (oW).slice (Rect.unit (s := S1600000) ![pos L n] S3200.size (out_inb L n)) (fun _ => rfl)

/-! The program's own slices are these pieces: by the closed forms of its offset functions. -/

omit [FloatOps F] in
theorem off2 {a b : ℕ} (h : a = b) : (![19, a] : Fin 2 → ℕ) = ![19, b] := by rw [h]
omit [FloatOps F] in
theorem off1' {a b : ℕ} (h : a = b) : (![a] : Fin 1 → ℕ) = ![b] := by rw [h]

omit [FloatOps F] in
theorem off_in0 (L : grid19.Coords) (h : valid L 0) : k19_off1 L 0#32 = ![19, pos L 0] :=
  (k19_off1_eq L 0).trans (off2 (by rw [pos_valid h]; simp))
omit [FloatOps F] in
theorem off_in1 (L : grid19.Coords) (h : valid L 1) : k19_off1 L 32#32 = ![19, pos L 1] :=
  (k19_off1_eq L 1).trans (off2 (by rw [pos_valid h]; simp))
omit [FloatOps F] in
theorem off_6 (L : grid19.Coords) (t : Fin k19_t1_loop.trips) (h : valid L (2 * t.val + 2)) : k19_off6 L t = ![19, pos L (2 * t.val + 2)] :=
  (k19_off6_eq L t).trans (off2 (by rw [pos_valid h]; omega))
omit [FloatOps F] in
theorem off_11 (L : grid19.Coords) (t : Fin k19_t1_loop.trips) (h : valid L (2 * t.val + 3)) : k19_off11 L t = ![19, pos L (2 * t.val + 3)] :=
  (k19_off11_eq L t).trans (off2 (by rw [pos_valid h]; omega))
omit [FloatOps F] in
theorem off_5 (L : grid19.Coords) (t : Fin k19_t1_loop.trips) (h : valid L (2 * t.val)) : k19_off5 L t = ![pos L (2 * t.val)] :=
  (k19_off5_eq L t).trans (off1' (by rw [pos_valid h]; omega))
omit [FloatOps F] in
theorem off_10 (L : grid19.Coords) (t : Fin k19_t1_loop.trips) (h : valid L (2 * t.val + 1)) : k19_off10 L t = ![pos L (2 * t.val + 1)] :=
  (k19_off10_eq L t).trans (off1' (by rw [pos_valid h]; omega))

/-- Holding a 1 × 3200 window of the transposed argument, or a 3200 window of the result, by exactly its elements
    says the same whichever way the window's offsets are spelt. -/
theorem in_congr {off off' : Fin 2 → ℕ} (h : off = off') (p : ∀ a, off a + S1x3200.size a ≤ S22x1600000.size a)
    (p' : ∀ a, off' a + S1x3200.size a ≤ S22x1600000.size a) (f : Buf (Elt F) ((xtW).view.loc (thr d L))) :
    (((xtW).slice (Rect.unit (s := S22x1600000) off S1x3200.size p) (fun _ => rfl)).view.loc (thr d L)
        ↦[((xtW).slice (Rect.unit (s := S22x1600000) off S1x3200.size p) (fun _ => rfl)).view.set]{fullShare} f : sProp 𝕄)
      = (((xtW).slice (Rect.unit (s := S22x1600000) off' S1x3200.size p') (fun _ => rfl)).view.loc (thr d L)
        ↦[((xtW).slice (Rect.unit (s := S22x1600000) off' S1x3200.size p') (fun _ => rfl)).view.set]{fullShare} f) := by
  subst h; rfl
theorem out_congr {off off' : Fin 1 → ℕ} (h : off = off') (p : ∀ a, off a + S3200.size a ≤ S1600000.size a)
    (p' : ∀ a, off' a + S3200.size a ≤ S1600000.size a) (f : Buf (Elt F) ((oW).view.loc (thr d L))) :
    (((oW).slice (Rect.unit (s := S1600000) off S3200.size p) (fun _ => rfl)).view.loc (thr d L)
        ↦[((oW).slice (Rect.unit (s := S1600000) off S3200.size p) (fun _ => rfl)).view.set]{fullShare} f : sProp 𝕄)
      = (((oW).slice (Rect.unit (s := S1600000) off' S3200.size p') (fun _ => rfl)).view.loc (thr d L)
        ↦[((oW).slice (Rect.unit (s := S1600000) off' S3200.size p') (fun _ => rfl)).view.set]{fullShare} f) := by
  subst h; rfl

/-! The printed conditions, as facts about the trip and the tile. -/

omit [FloatOps F] in
theorem trips1 : k19_t1_loop.trips = 8 := by decide
omit [FloatOps F] in
theorem cond1_iff : ∀ (t : Fin k19_t1_loop.trips), k19_cond1 t = 1#1 ↔ 1 ≤ t.val := by decide +kernel
omit [FloatOps F] in
theorem cond2_iff : ∀ (L : grid19.Coords) (t : Fin k19_t1_loop.trips), k19_cond2 L t = 1#1 := by decide +kernel
omit [FloatOps F] in
theorem cond3_iff : ∀ (L : grid19.Coords) (t : Fin k19_t1_loop.trips), k19_cond3 L t = 1#1 ↔ t.val ≤ 6 := by decide +kernel
omit [FloatOps F] in
theorem cond4_iff : ∀ (t : Fin k19_t1_loop.trips), k19_cond4 t = 1#1 ↔ 1 ≤ t.val := by decide +kernel
omit [FloatOps F] in
theorem cond5_iff : ∀ (L : grid19.Coords) (t : Fin k19_t1_loop.trips), k19_cond5 L t = 1#1 ↔ (t.val ≤ 6 ∨ big L) := by decide +kernel
omit [FloatOps F] in
theorem cond6_iff : ∀ (L : grid19.Coords) (t : Fin k19_t1_loop.trips), k19_cond6 L t = 1#1 ↔ (t.val ≤ 5 ∨ (t.val = 6 ∧ big L)) := by decide +kernel
omit [FloatOps F] in
theorem cond7_iff : ∀ (L : grid19.Coords), k19_cond7 L = 1#1 := by decide +kernel
omit [FloatOps F] in
theorem cond8_iff : ∀ (L : grid19.Coords), k19_cond8 L = 1#1 ↔ big L := by decide +kernel

variable (O : CellTallies nD τ sig (HIx 22)) (W : Waits sig (HIx 22))
variable (fx : Buf (Elt F) ((xtW).view.loc (thr d L)))

abbrev NN : ℕ := 102400

/-- The 3200-element window of a flat staging buffer that a piece is written out from. -/
abbrev stg (a : Memref sig .scVector .vmem S25600 .f32) : Memref sig .scVector .vmem S3200 .f32 :=
  a.slice (Rect.unit (s := S25600) ![0] S3200.size inb_S25600_S3200_0) (fun _ => rfl)

/-- Piece `n` of the argument row held by exactly its elements, at the argument's contents; piece `n` of the result
    held by exactly its elements, at some contents. -/
abbrev xtPiece (n : ℕ) : sProp 𝕄 := (inM L n).view.loc (thr d L) ↦[(inM L n).view.set]{fullShare} fx
abbrev oPiece (n : ℕ) : sProp 𝕄 := iprop(∃ f, (outM L n).view.loc (thr d L) ↦[(outM L n).view.set]{fullShare} f)

/-- The lane-copy loop of a slot: the staging row keeps its contents, the flat staging buffer holds some contents. -/
def laneInv0 (g4 : Buf (Elt F) ((a4).view.loc (thr d L))) (_ : ℕ) (_ : PUnit) : sProp 𝕄 :=
  iprop(((a4).view.loc (thr d L) ↦{fullShare} g4) ∗ (∃ g, (a6).view.loc (thr d L) ↦{fullShare} g))
def laneInv1 (g5 : Buf (Elt F) ((a5).view.loc (thr d L))) (_ : ℕ) (_ : PUnit) : sProp 𝕄 :=
  iprop(((a5).view.loc (thr d L) ↦{fullShare} g5) ∗ (∃ g, (a7).view.loc (thr d L) ↦{fullShare} g))

/-- A fetch slot before trip work on piece `n`: the piece's fetch in flight (it will hand back the staging row at some
    contents, and the piece), or, when there is no such piece, the slot idle. -/
def inSlot (a : Memref sig .scVector .vmem S8x3200 .f32) (sm : DmaSem sig) (n : ℕ) : sProp 𝕄 :=
  if valid L n then
    iprop(∃ g, Transfers.Flight countersEmb (thr d L) (SemLoc.dma sm) (default : HIx 22) NN
      iprop((a.view.loc (thr d L) ↦{fullShare} g) ∗ xtPiece d L fx n))
  else iprop((∃ g, a.view.loc (thr d L) ↦{fullShare} g) ∗ semVal (thr d L, SemLoc.dma sm) 0)

/-- A write-out slot before trip work on piece `m`: piece `m - 2`'s write-out in flight (it will hand back that piece
    of the result at some contents, and the staging window), the rest of the staging buffer beside it; or idle. -/
def outSlot (a : Memref sig .scVector .vmem S25600 .f32) (sm : DmaSem sig) (m : ℕ) : sProp 𝕄 :=
  if 2 ≤ m ∧ valid L (m - 2) then
    iprop(∃ g, Transfers.Flight countersEmb (thr d L) (SemLoc.dma sm) (default : HIx 22) NN
        iprop(oPiece d L (m - 2) ∗ ((stg a).view.loc (thr d L) ↦[(stg a).view.set]{fullShare} g))
      ∗ (a.view.loc (thr d L) ↦[Finset.univ \ (stg a).view.set]{fullShare} g))
  else iprop((∃ g, a.view.loc (thr d L) ↦{fullShare} g) ∗ semVal (thr d L, SemLoc.dma sm) 0)

/-- Piece `n` when it exists, nothing otherwise. -/
def xP (n : ℕ) : sProp 𝕄 := if valid L n then xtPiece d L fx n else iprop(emp)
def oP (n : ℕ) : sProp 𝕄 := if valid L n then oPiece d L n else iprop(emp)

/-- What the tile holds outside the slots before trip `t`: every piece of the argument row but those being fetched
    (`2t`, `2t + 1`), every piece of the result but those being written out (`2t - 2`, `2t - 1`). -/
def xSet (t : ℕ) : Finset ℕ := (Finset.range 18).filter fun n => n ≠ 2 * t ∧ n ≠ 2 * t + 1
def oSet (t : ℕ) : Finset ℕ := (Finset.range 18).filter fun n => n + 2 ≠ 2 * t ∧ n + 2 ≠ 2 * t + 1

def inv (t : ℕ) (_ : PUnit) : sProp 𝕄 :=
  iprop(Transfers.MayWaits (thr d L) (none : HIx 22) O
    ∗ (∃ W', ⌜∀ p ∈ W', p ∈ W ∨ p.2 = none⌝ ∗ owes (thr d L) O W')
    ∗ bigSep (xSet t) (xP d L fx) ∗ bigSep (oSet t) (oP d L)
    ∗ inSlot d L fx a4 cc19_scratch4.sem (2 * t) ∗ outSlot d L a6 cc19_scratch6.sem (2 * t)
    ∗ inSlot d L fx a5 cc19_scratch5.sem (2 * t + 1) ∗ outSlot d L a7 cc19_scratch7.sem (2 * t + 1))

omit [FloatOps F] in
theorem two_out {Φ : ℕ → sProp 𝕄} {s : Finset ℕ} {a b : ℕ} (ha : a ∈ s) (hb : b ∈ s) (hab : a ≠ b) :
    bigSep s Φ = iprop(Φ a ∗ Φ b ∗ bigSep ((s.erase a).erase b) Φ) := by
  rw [SparseCore.bigSep_erase' ha, SparseCore.bigSep_erase' (Finset.mem_erase.mpr ⟨fun e => hab e.symm, hb⟩)]

omit [FloatOps F] in
theorem range18_split : (Finset.range 18) = insert 0 (insert 1 (xSet 0)) := by decide

theorem xRange_split (v0 : valid L 0) (v1 : valid L 1) :
    bigSep (Finset.range 18) (xP d L fx) = iprop(xtPiece d L fx 0 ∗ xtPiece d L fx 1 ∗ bigSep (xSet 0) (xP d L fx)) := by
  rw [range18_split, SparseCore.bigSep_insert' (by decide), SparseCore.bigSep_insert' (by decide)]
  unfold xP; rw [if_pos v0, if_pos v1]
omit [FloatOps F] in
theorem oSet_zero : oSet 0 = Finset.range 18 := by decide

theorem inSlot_pos {a : Memref sig .scVector .vmem S8x3200 .f32} {sm : DmaSem sig} {n : ℕ} (v : valid L n) :
    inSlot d L fx a sm n = iprop(∃ g, Transfers.Flight countersEmb (thr d L) (SemLoc.dma sm) (default : HIx 22) NN
      iprop((a.view.loc (thr d L) ↦{fullShare} g) ∗ xtPiece d L fx n)) := by unfold inSlot; rw [if_pos v]
theorem inSlot_neg {a : Memref sig .scVector .vmem S8x3200 .f32} {sm : DmaSem sig} {n : ℕ} (v : ¬ valid L n) :
    inSlot d L fx a sm n = iprop((∃ g, a.view.loc (thr d L) ↦{fullShare} g) ∗ semVal (thr d L, SemLoc.dma sm) 0) := by
  unfold inSlot; rw [if_neg v]
theorem outSlot_pos {a : Memref sig .scVector .vmem S25600 .f32} {sm : DmaSem sig} {m : ℕ} (h : 2 ≤ m ∧ valid L (m - 2)) :
    outSlot (F := F) d L a sm m = iprop(∃ g, Transfers.Flight countersEmb (thr d L) (SemLoc.dma sm) (default : HIx 22) NN
        iprop(oPiece (F := F) d L (m - 2) ∗ ((stg a).view.loc (thr d L) ↦[(stg a).view.set]{fullShare} g))
      ∗ (a.view.loc (thr d L) ↦[Finset.univ \ (stg a).view.set]{fullShare} g)) := by unfold outSlot; rw [if_pos h]
theorem outSlot_neg {a : Memref sig .scVector .vmem S25600 .f32} {sm : DmaSem sig} {m : ℕ} (h : ¬ (2 ≤ m ∧ valid L (m - 2))) :
    outSlot (F := F) d L a sm m = iprop((∃ g, a.view.loc (thr d L) ↦{fullShare} g) ∗ semVal (thr d L, SemLoc.dma sm) 0) := by
  unfold outSlot; rw [if_neg h]

/-- A fetch in flight, its source window spelt by any offsets equal to piece `n`'s, fills the fetch slot for `n`. -/
theorem fl_in {off : Fin 2 → ℕ} {n : ℕ} (h : off = ![19, pos L n]) (p : ∀ a, off a + S1x3200.size a ≤ S22x1600000.size a) (v : valid L n)
    (a : Memref sig .scVector .vmem S8x3200 .f32) (sm : DmaSem sig) :
    (iprop(∃ g, Transfers.Flight countersEmb (thr d L) (SemLoc.dma sm) (default : HIx 22) NN
        iprop((a.view.loc (thr d L) ↦{fullShare} g)
          ∗ (((xtW).slice (Rect.unit (s := S22x1600000) off S1x3200.size p) (fun _ => rfl)).view.loc (thr d L)
              ↦[((xtW).slice (Rect.unit (s := S22x1600000) off S1x3200.size p) (fun _ => rfl)).view.set]{fullShare} fx))) : sProp 𝕄)
      ⊢ inSlot d L fx a sm n := by
  rw [inSlot_pos d L fx v]
  iintro ⟨%g, H⟩
  have hD : (iprop((a.view.loc (thr d L) ↦{fullShare} g)
          ∗ (((xtW).slice (Rect.unit (s := S22x1600000) off S1x3200.size p) (fun _ => rfl)).view.loc (thr d L)
              ↦[((xtW).slice (Rect.unit (s := S22x1600000) off S1x3200.size p) (fun _ => rfl)).view.set]{fullShare} fx)) : sProp 𝕄)
      ⊢ iprop((a.view.loc (thr d L) ↦{fullShare} g) ∗ xtPiece d L fx n) := by
    iintro ⟨H1, H2⟩
    isplitl [H1]; · iexact H1
    iapply (Entails.of_eq (in_congr d L h p (in_inb L n) fx)); iexact H2
  iexists g
  iapply (Transfers.Flight_mono countersEmb (thr d L) hD); iexact H

/-- A write-out in flight, its destination window spelt by any offsets equal to piece `n`'s, with the rest of the
    staging buffer, fills the write-out slot for `n + 2`. -/
theorem fl_out {off : Fin 1 → ℕ} {n : ℕ} (h : off = ![pos L n]) (p : ∀ a, off a + S3200.size a ≤ S1600000.size a) (v : valid L n)
    (a : Memref sig .scVector .vmem S25600 .f32) (sm : DmaSem sig) :
    (iprop(∃ (f : Buf (Elt F) ((oW).view.loc (thr d L))) (g : Buf (Elt F) (a.view.loc (thr d L))), Transfers.Flight countersEmb (thr d L) (SemLoc.dma sm) (default : HIx 22) NN
        iprop((((oW).slice (Rect.unit (s := S1600000) off S3200.size p) (fun _ => rfl)).view.loc (thr d L)
              ↦[((oW).slice (Rect.unit (s := S1600000) off S3200.size p) (fun _ => rfl)).view.set]{fullShare} f)
          ∗ ((stg a).view.loc (thr d L) ↦[(stg a).view.set]{fullShare} g))
        ∗ (a.view.loc (thr d L) ↦[Finset.univ \ (stg a).view.set]{fullShare} g)) : sProp 𝕄)
      ⊢ outSlot (F := F) d L a sm (n + 2) := by
  rw [outSlot_pos (F := F) d L (m := n + 2) ⟨by omega, by simpa using v⟩]
  iintro ⟨%f, %g, H, R⟩
  have hD : (iprop((((oW).slice (Rect.unit (s := S1600000) off S3200.size p) (fun _ => rfl)).view.loc (thr d L)
              ↦[((oW).slice (Rect.unit (s := S1600000) off S3200.size p) (fun _ => rfl)).view.set]{fullShare} f)
          ∗ ((stg a).view.loc (thr d L) ↦[(stg a).view.set]{fullShare} g)) : sProp 𝕄)
      ⊢ iprop(oPiece (F := F) d L (n + 2 - 2) ∗ ((stg a).view.loc (thr d L) ↦[(stg a).view.set]{fullShare} g)) := by
    rw [Nat.add_sub_cancel]
    iintro ⟨H1, H2⟩
    isplitl [H1]
    · iexists f; iapply (Entails.of_eq (out_congr d L h p (out_inb L n) f)); iexact H1
    · iexact H2
  iexists g
  isplitl [H]
  · iapply (Transfers.Flight_mono countersEmb (thr d L) hD); iexact H
  · iexact R

/-! The pieces outside the slots, from one trip to the next. -/
def xCore (k : ℕ) : Finset ℕ := (Finset.range 18).filter fun n => n ≠ 2 * k ∧ n ≠ 2 * k + 1 ∧ n ≠ 2 * k + 2 ∧ n ≠ 2 * k + 3
def oCore (k : ℕ) : Finset ℕ := (Finset.range 18).filter fun n => n + 2 ≠ 2 * k ∧ n + 2 ≠ 2 * k + 1 ∧ n ≠ 2 * k ∧ n ≠ 2 * k + 1

omit [FloatOps F] in
theorem xSet_out (Φ : ℕ → sProp 𝕄) (k : ℕ) (hk : k < 8) : bigSep (xSet k) Φ = iprop(Φ (2 * k + 2) ∗ Φ (2 * k + 3) ∗ bigSep (xCore k) Φ) := by
  have e : ((xSet k).erase (2 * k + 2)).erase (2 * k + 3) = xCore k := by
    ext n; simp only [xSet, xCore, Finset.mem_erase, Finset.mem_filter, Finset.mem_range]; omega
  rw [← e]; exact two_out (by simp only [xSet, Finset.mem_filter, Finset.mem_range]; omega) (by simp only [xSet, Finset.mem_filter, Finset.mem_range]; omega) (by omega)
omit [FloatOps F] in
theorem xSet_in (Φ : ℕ → sProp 𝕄) (k : ℕ) (hk : k < 8) : bigSep (xSet (k + 1)) Φ = iprop(Φ (2 * k) ∗ Φ (2 * k + 1) ∗ bigSep (xCore k) Φ) := by
  have e : ((xSet (k + 1)).erase (2 * k)).erase (2 * k + 1) = xCore k := by
    ext n; simp only [xSet, xCore, Finset.mem_erase, Finset.mem_filter, Finset.mem_range]; omega
  rw [← e]; exact two_out (by simp only [xSet, Finset.mem_filter, Finset.mem_range]; omega) (by simp only [xSet, Finset.mem_filter, Finset.mem_range]; omega) (by omega)
omit [FloatOps F] in
theorem oSet_out (Φ : ℕ → sProp 𝕄) (k : ℕ) (hk : k < 8) : bigSep (oSet k) Φ = iprop(Φ (2 * k) ∗ Φ (2 * k + 1) ∗ bigSep (oCore k) Φ) := by
  have e : ((oSet k).erase (2 * k)).erase (2 * k + 1) = oCore k := by
    ext n; simp only [oSet, oCore, Finset.mem_erase, Finset.mem_filter, Finset.mem_range]; omega
  rw [← e]; exact two_out (by simp only [oSet, Finset.mem_filter, Finset.mem_range]; omega) (by simp only [oSet, Finset.mem_filter, Finset.mem_range]; omega) (by omega)
omit [FloatOps F] in
theorem oSet_in (Φ : ℕ → sProp 𝕄) (k : ℕ) (hk : k < 8) (hk1 : 1 ≤ k) :
    bigSep (oSet (k + 1)) Φ = iprop(Φ (2 * k - 2) ∗ Φ (2 * k - 1) ∗ bigSep (oCore k) Φ) := by
  have e : ((oSet (k + 1)).erase (2 * k - 2)).erase (2 * k - 1) = oCore k := by
    ext n; simp only [oSet, oCore, Finset.mem_erase, Finset.mem_filter, Finset.mem_range]; omega
  rw [← e]; exact two_out (by simp only [oSet, Finset.mem_filter, Finset.mem_range]; omega) (by simp only [oSet, Finset.mem_filter, Finset.mem_range]; omega) (by omega)

theorem xP_pos {n : ℕ} (v : valid L n) : xP d L fx n = xtPiece d L fx n := if_pos v
theorem oP_pos {n : ℕ} (v : valid L n) : oP (F := F) d L n = oPiece (F := F) d L n := if_pos v
theorem xP_neg {n : ℕ} (v : ¬ valid L n) : xP d L fx n = iprop(emp) := if_neg v
theorem oP_neg {n : ℕ} (v : ¬ valid L n) : oP (F := F) d L n = iprop(emp) := if_neg v

/-- Piece `n` of the result at its final contents: row 19 of the transposed argument. -/
def oQ (n : ℕ) : sProp 𝕄 :=
  if valid L n then (outM L n).view.loc (thr d L) ↦[(outM L n).view.set]{fullShare} (Cert.Spec.row 19 fx) else iprop(emp)

/-- What a tile is handed for the call: its pieces of row 19 of the transposed argument, at the argument's contents, and
    its pieces of the result at some contents. What it hands back: the same pieces of the argument, and its pieces of
    the result holding the row. -/
def goRes : sProp 𝕄 := iprop(bigSep (Finset.range 18) (xP d L fx) ∗ bigSep (Finset.range 18) (oP (F := F) d L))
def tdRes : sProp 𝕄 := iprop(bigSep (Finset.range 18) (xP d L fx) ∗ bigSep (Finset.range 18) (oQ d L fx))

end Tile

end Cert.Proof.TileK19

end
-- ==== Proof.TileK20Defs.lean ====
/-
  One vector subcore's task of copy kernel 20 (counting from 0): definitions. The task moves its pieces of row 20 of the
  transposed argument (pieces of 3200 consecutive elements, piece number 2·s + c + 32·n for the subcore (c, s) and
  n = 0, 1, … while that number is below 500) into the flat result: each piece is fetched into a staging row, copied
  16 lanes at a time into a flat staging buffer, and written out, two pieces in flight at a time. Here: the pieces as
  memrefs, the program's own spellings of them, the printed conditions as facts about the trip, the two slots' states
  between trips, and what the tile holds outside the slots.
-/
import proofs.«206869_g37898791420194_cont_8to1_b_558_20_alg».proof.Defs
import Idealize.ShloMosaic.Lib.SparseCore.Launch
import Idealize.ShloMosaic.Lib.StableHlo.Run
import Idealize.ShloMosaic.Lib.Pipeline.Kit
import Idealize.ShloMosaic.Lib.Tactic
import proofs.«206869_g37898791420194_cont_8to1_b_558_20_alg».proof.Proof.Gen.KernelIdeal
import proofs.«206869_g37898791420194_cont_8to1_b_558_20_alg».proof.Proof.Gen.KernelIdeal.Skeleton
import proofs.«206869_g37898791420194_cont_8to1_b_558_20_alg».proof.Proof.Spec

noncomputable section

namespace Cert.Proof.TileK20

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

abbrev ΛP : Labels := Pipeline.Sig Λ₀ (Fin 0) fun p => (pcfgs (F := F) p).Adm
abbrev K : SparseCore.Cfg τ sig (ΛP (F := F)) 22 := sc (F := F)
abbrev 𝒱₀ : Variants := Variants.none

abbrev UH : Type := URounds (GSem nD τ sig) ℕ
abbrev UU : Type := UH × Counters

local notation "𝕄" => MT nD τ sig (HIx 22) (Elt F) ℕ UU ℕ

local notation "xtW" => (Memref.whole Cert.KernelIdeal.main_v0_scv : Memref Cert.KernelIdeal.sig Kind.scVector Space.hbm Cert.KernelIdeal.S22x1600000 EltTy.f32)
local notation "oW" => (Memref.whole Cert.KernelIdeal.main_v21_scv : Memref Cert.KernelIdeal.sig Kind.scVector Space.hbm Cert.KernelIdeal.S1600000 EltTy.f32)
local notation "a4" => (Memref.whole Cert.KernelIdeal.cc20_scratch0 : Memref Cert.KernelIdeal.sig Kind.scVector Space.vmem Cert.KernelIdeal.S8x3200 EltTy.f32)
local notation "a5" => (Memref.whole Cert.KernelIdeal.cc20_scratch1 : Memref Cert.KernelIdeal.sig Kind.scVector Space.vmem Cert.KernelIdeal.S8x3200 EltTy.f32)
local notation "a6" => (Memref.whole Cert.KernelIdeal.cc20_scratch2 : Memref Cert.KernelIdeal.sig Kind.scVector Space.vmem Cert.KernelIdeal.S25600 EltTy.f32)
local notation "a7" => (Memref.whole Cert.KernelIdeal.cc20_scratch3 : Memref Cert.KernelIdeal.sig Kind.scVector Space.vmem Cert.KernelIdeal.S25600 EltTy.f32)

variable [FloatOps F]

section Tile

variable (d : Dev nD) (L : grid20.Coords)

abbrev cV (L : grid20.Coords) : Fin τ.nSC := (L 0).castLE hcore20
abbrev jV (L : grid20.Coords) : Fin τ.nSub := (L 1).castLE hsub20
abbrev thr (d : Dev nD) (L : grid20.Coords) : Thread nD τ := V d (cV L) (jV L)

/-- The tile's number 2·s + c, and whether it has sixteen pieces (numbers below 20) or fifteen. -/
abbrev wid (L : grid20.Coords) : ℕ := 2 * (L 1).val + (L 0).val
abbrev big (L : grid20.Coords) : Prop := wid L < 20

omit [FloatOps F] in
theorem wid_lt (L : grid20.Coords) : wid L < 32 := by
  have h0 : (L 0).val < 2 := (L 0).isLt
  have h1 : (L 1).val < 16 := (L 1).isLt
  unfold wid; omega

/-- Piece `n` of the tile exists: `n < 15`, or `n = 15` on a tile with sixteen pieces. It is the piece number
    `wid + 32·n < 500` of the row. -/
def valid (L : grid20.Coords) (n : ℕ) : Prop := n < 15 ∨ (n = 15 ∧ big L)
instance (L : grid20.Coords) (n : ℕ) : Decidable (valid L n) := by unfold valid big; infer_instance

omit [FloatOps F] in
theorem valid_iff (L : grid20.Coords) (n : ℕ) : valid L n ↔ wid L + 32 * n < 500 := by
  have := wid_lt L; unfold valid big; omega

/-- Where piece `n` starts in the row (clamped to the last piece of the row, so that the rectangle is in bounds for
    every `n`; for a valid piece the clamp is idle). -/
abbrev pos (L : grid20.Coords) (n : ℕ) : ℕ := 3200 * min (wid L + 32 * n) 499

omit [FloatOps F] in
theorem pos_valid {L : grid20.Coords} {n : ℕ} (h : valid L n) : pos L n = 6400 * (L 1).val + 3200 * (L 0).val + 102400 * n := by
  have := (valid_iff L n).mp h; unfold pos wid at *; omega

omit [FloatOps F] in
theorem in_inb (L : grid20.Coords) (n : ℕ) : ∀ a, (![20, pos L n] : Fin 2 → ℕ) a + S1x3200.size a ≤ S22x1600000.size a := by
  intro a; fin_cases a
  · show 20 + 1 ≤ 22; omega
  · show pos L n + 3200 ≤ 1600000; unfold pos; omega
omit [FloatOps F] in
theorem out_inb (L : grid20.Coords) (n : ℕ) : ∀ a, (![pos L n] : Fin 1 → ℕ) a + S3200.size a ≤ S1600000.size a := by
  intro a; fin_cases a
  show pos L n + 3200 ≤ 1600000; unfold pos; omega

/-- Piece `n` of row 20 of the transposed argument, and piece `n` of the flat result, as memrefs of the tile. -/
abbrev inM (L : grid20.Coords) (n : ℕ) : Memref sig .scVector .hbm S1x3200 .f32 :=
  (xtW).slice (Rect.unit (s := S22x1600000) ![20, pos L n] S1x3200.size (in_inb L n)) (fun _ => rfl)
abbrev outM (L : grid20.Coords) (n : ℕ) : Memref sig .scVector .hbm S3200 .f32 :=
  (oW).slice (Rect.unit (s := S1600000) ![pos L n] S3200.size (out_inb L n)) (fun _ => rfl)

/-! The program's own slices are these pieces: by the closed forms of its offset functions. -/

omit [FloatOps F] in
theorem off2 {a b : ℕ} (h : a = b) : (![20, a] : Fin 2 → ℕ) = ![20, b] := by rw [h]
omit [FloatOps F] in
theorem off1' {a b : ℕ} (h : a = b) : (![a] : Fin 1 → ℕ) = ![b] := by rw [h]

omit [FloatOps F] in
theorem off_in0 (L : grid20.Coords) (h : valid L 0) : k20_off1 L 0#32 = ![20, pos L 0] :=
  (k20_off1_eq L 0).trans (off2 (by rw [pos_valid h]; simp))
omit [FloatOps F] in
theorem off_in1 (L : grid20.Coords) (h : valid L 1) : k20_off1 L 32#32 = ![20, pos L 1] :=
  (k20_off1_eq L 1).trans (off2 (by rw [pos_valid h]; simp))
omit [FloatOps F] in
theorem off_6 (L : grid20.Coords) (t : Fin k20_t1_loop.trips) (h : valid L (2 * t.val + 2)) : k20_off6 L t = ![20, pos L (2 * t.val + 2)] :=
  (k20_off6_eq L t).trans (off2 (by rw [pos_valid h]; omega))
omit [FloatOps F] in
theorem off_11 (L : grid20.Coords) (t : Fin k20_t1_loop.trips) (h : valid L (2 * t.val + 3)) : k20_off11 L t = ![20, pos L (2 * t.val + 3)] :=
  (k20_off11_eq L t).trans (off2 (by rw [pos_valid h]; omega))
omit [FloatOps F] in
theorem off_5 (L : grid20.Coords) (t : Fin k20_t1_loop.trips) (h : valid L (2 * t.val)) : k20_off5 L t = ![pos L (2 * t.val)] :=
  (k20_off5_eq L t).trans (off1' (by rw [pos_valid h]; omega))
omit [FloatOps F] in
theorem off_10 (L : grid20.Coords) (t : Fin k20_t1_loop.trips) (h : valid L (2 * t.val + 1)) : k20_off10 L t = ![pos L (2 * t.val + 1)] :=
  (k20_off10_eq L t).trans (off1' (by rw [pos_valid h]; omega))

/-- Holding a 1 × 3200 window of the transposed argument, or a 3200 window of the result, by exactly its elements
    says the same whichever way the window's offsets are spelt. -/
theorem in_congr {off off' : Fin 2 → ℕ} (h : off = off') (p : ∀ a, off a + S1x3200.size a ≤ S22x1600000.size a)
    (p' : ∀ a, off' a + S1x3200.size a ≤ S22x1600000.size a) (f : Buf (Elt F) ((xtW).view.loc (thr d L))) :
    (((xtW).slice (Rect.unit (s := S22x1600000) off S1x3200.size p) (fun _ => rfl)).view.loc (thr d L)
        ↦[((xtW).slice (Rect.unit (s := S22x1600000) off S1x3200.size p) (fun _ => rfl)).view.set]{fullShare} f : sProp 𝕄)
      = (((xtW).slice (Rect.unit (s := S22x1600000) off' S1x3200.size p') (fun _ => rfl)).view.loc (thr d L)
        ↦[((xtW).slice (Rect.unit (s := S22x1600000) off' S1x3200.size p') (fun _ => rfl)).view.set]{fullShare} f) := by
  subst h; rfl
theorem out_congr {off off' : Fin 1 → ℕ} (h : off = off') (p : ∀ a, off a + S3200.size a ≤ S1600000.size a)
    (p' : ∀ a, off' a + S3200.size a ≤ S1600000.size a) (f : Buf (Elt F) ((oW).view.loc (thr d L))) :
    (((oW).slice (Rect.unit (s := S1600000) off S3200.size p) (fun _ => rfl)).view.loc (thr d L)
        ↦[((oW).slice (Rect.unit (s := S1600000) off S3200.size p) (fun _ => rfl)).view.set]{fullShare} f : sProp 𝕄)
      = (((oW).slice (Rect.unit (s := S1600000) off' S3200.size p') (fun _ => rfl)).view.loc (thr d L)
        ↦[((oW).slice (Rect.unit (s := S1600000) off' S3200.size p') (fun _ => rfl)).view.set]{fullShare} f) := by
  subst h; rfl

/-! The printed conditions, as facts about the trip and the tile. -/

omit [FloatOps F] in
theorem trips1 : k20_t1_loop.trips = 8 := by decide
omit [FloatOps F] in
theorem cond1_iff : ∀ (t : Fin k20_t1_loop.trips), k20_cond1 t = 1#1 ↔ 1 ≤ t.val := by decide +kernel
omit [FloatOps F] in
theorem cond2_iff : ∀ (L : grid20.Coords) (t : Fin k20_t1_loop.trips), k20_cond2 L t = 1#1 := by decide +kernel
omit [FloatOps F] in
theorem cond3_iff : ∀ (L : grid20.Coords) (t : Fin k20_t1_loop.trips), k20_cond3 L t = 1#1 ↔ t.val ≤ 6 := by decide +kernel
omit [FloatOps F] in
theorem cond4_iff : ∀ (t : Fin k20_t1_loop.trips), k20_cond4 t = 1#1 ↔ 1 ≤ t.val := by decide +kernel
omit [FloatOps F] in
theorem cond5_iff : ∀ (L : grid20.Coords) (t : Fin k20_t1_loop.trips), k20_cond5 L t = 1#1 ↔ (t.val ≤ 6 ∨ big L) := by decide +kernel
omit [FloatOps F] in
theorem cond6_iff : ∀ (L : grid20.Coords) (t : Fin k20_t1_loop.trips), k20_cond6 L t = 1#1 ↔ (t.val ≤ 5 ∨ (t.val = 6 ∧ big L)) := by decide +kernel
omit [FloatOps F] in
theorem cond7_iff : ∀ (L : grid20.Coords), k20_cond7 L = 1#1 := by decide +kernel
omit [FloatOps F] in
theorem cond8_iff : ∀ (L : grid20.Coords), k20_cond8 L = 1#1 ↔ big L := by decide +kernel

variable (O : CellTallies nD τ sig (HIx 22)) (W : Waits sig (HIx 22))
variable (fx : Buf (Elt F) ((xtW).view.loc (thr d L)))

abbrev NN : ℕ := 102400

/-- The 3200-element window of a flat staging buffer that a piece is written out from. -/
abbrev stg (a : Memref sig .scVector .vmem S25600 .f32) : Memref sig .scVector .vmem S3200 .f32 :=
  a.slice (Rect.unit (s := S25600) ![0] S3200.size inb_S25600_S3200_0) (fun _ => rfl)

/-- Piece `n` of the argument row held by exactly its elements, at the argument's contents; piece `n` of the result
    held by exactly its elements, at some contents. -/
abbrev xtPiece (n : ℕ) : sProp 𝕄 := (inM L n).view.loc (thr d L) ↦[(inM L n).view.set]{fullShare} fx
abbrev oPiece (n : ℕ) : sProp 𝕄 := iprop(∃ f, (outM L n).view.loc (thr d L) ↦[(outM L n).view.set]{fullShare} f)

/-- The lane-copy loop of a slot: the staging row keeps its contents, the flat staging buffer holds some contents. -/
def laneInv0 (g4 : Buf (Elt F) ((a4).view.loc (thr d L))) (_ : ℕ) (_ : PUnit) : sProp 𝕄 :=
  iprop(((a4).view.loc (thr d L) ↦{fullShare} g4) ∗ (∃ g, (a6).view.loc (thr d L) ↦{fullShare} g))
def laneInv1 (g5 : Buf (Elt F) ((a5).view.loc (thr d L))) (_ : ℕ) (_ : PUnit) : sProp 𝕄 :=
  iprop(((a5).view.loc (thr d L) ↦{fullShare} g5) ∗ (∃ g, (a7).view.loc (thr d L) ↦{fullShare} g))

/-- A fetch slot before trip work on piece `n`: the piece's fetch in flight (it will hand back the staging row at some
    contents, and the piece), or, when there is no such piece, the slot idle. -/
def inSlot (a : Memref sig .scVector .vmem S8x3200 .f32) (sm : DmaSem sig) (n : ℕ) : sProp 𝕄 :=
  if valid L n then
    iprop(∃ g, Transfers.Flight countersEmb (thr d L) (SemLoc.dma sm) (default : HIx 22) NN
      iprop((a.view.loc (thr d L) ↦{fullShare} g) ∗ xtPiece d L fx n))
  else iprop((∃ g, a.view.loc (thr d L) ↦{fullShare} g) ∗ semVal (thr d L, SemLoc.dma sm) 0)

/-- A write-out slot before trip work on piece `m`: piece `m - 2`'s write-out in flight (it will hand back that piece
    of the result at some contents, and the staging window), the rest of the staging buffer beside it; or idle. -/
def outSlot (a : Memref sig .scVector .vmem S25600 .f32) (sm : DmaSem sig) (m : ℕ) : sProp 𝕄 :=
  if 2 ≤ m ∧ valid L (m - 2) then
    iprop(∃ g, Transfers.Flight countersEmb (thr d L) (SemLoc.dma sm) (default : HIx 22) NN
        iprop(oPiece d L (m - 2) ∗ ((stg a).view.loc (thr d L) ↦[(stg a).view.set]{fullShare} g))
      ∗ (a.view.loc (thr d L) ↦[Finset.univ \ (stg a).view.set]{fullShare} g))
  else iprop((∃ g, a.view.loc (thr d L) ↦{fullShare} g) ∗ semVal (thr d L, SemLoc.dma sm) 0)

/-- Piece `n` when it exists, nothing otherwise. -/
def xP (n : ℕ) : sProp 𝕄 := if valid L n then xtPiece d L fx n else iprop(emp)
def oP (n : ℕ) : sProp 𝕄 := if valid L n then oPiece d L n else iprop(emp)

/-- What the tile holds outside the slots before trip `t`: every piece of the argument row but those being fetched
    (`2t`, `2t + 1`), every piece of the result but those being written out (`2t - 2`, `2t - 1`). -/
def xSet (t : ℕ) : Finset ℕ := (Finset.range 18).filter fun n => n ≠ 2 * t ∧ n ≠ 2 * t + 1
def oSet (t : ℕ) : Finset ℕ := (Finset.range 18).filter fun n => n + 2 ≠ 2 * t ∧ n + 2 ≠ 2 * t + 1

def inv (t : ℕ) (_ : PUnit) : sProp 𝕄 :=
  iprop(Transfers.MayWaits (thr d L) (none : HIx 22) O
    ∗ (∃ W', ⌜∀ p ∈ W', p ∈ W ∨ p.2 = none⌝ ∗ owes (thr d L) O W')
    ∗ bigSep (xSet t) (xP d L fx) ∗ bigSep (oSet t) (oP d L)
    ∗ inSlot d L fx a4 cc20_scratch4.sem (2 * t) ∗ outSlot d L a6 cc20_scratch6.sem (2 * t)
    ∗ inSlot d L fx a5 cc20_scratch5.sem (2 * t + 1) ∗ outSlot d L a7 cc20_scratch7.sem (2 * t + 1))

omit [FloatOps F] in
theorem two_out {Φ : ℕ → sProp 𝕄} {s : Finset ℕ} {a b : ℕ} (ha : a ∈ s) (hb : b ∈ s) (hab : a ≠ b) :
    bigSep s Φ = iprop(Φ a ∗ Φ b ∗ bigSep ((s.erase a).erase b) Φ) := by
  rw [SparseCore.bigSep_erase' ha, SparseCore.bigSep_erase' (Finset.mem_erase.mpr ⟨fun e => hab e.symm, hb⟩)]

omit [FloatOps F] in
theorem range18_split : (Finset.range 18) = insert 0 (insert 1 (xSet 0)) := by decide

theorem xRange_split (v0 : valid L 0) (v1 : valid L 1) :
    bigSep (Finset.range 18) (xP d L fx) = iprop(xtPiece d L fx 0 ∗ xtPiece d L fx 1 ∗ bigSep (xSet 0) (xP d L fx)) := by
  rw [range18_split, SparseCore.bigSep_insert' (by decide), SparseCore.bigSep_insert' (by decide)]
  unfold xP; rw [if_pos v0, if_pos v1]
omit [FloatOps F] in
theorem oSet_zero : oSet 0 = Finset.range 18 := by decide

theorem inSlot_pos {a : Memref sig .scVector .vmem S8x3200 .f32} {sm : DmaSem sig} {n : ℕ} (v : valid L n) :
    inSlot d L fx a sm n = iprop(∃ g, Transfers.Flight countersEmb (thr d L) (SemLoc.dma sm) (default : HIx 22) NN
      iprop((a.view.loc (thr d L) ↦{fullShare} g) ∗ xtPiece d L fx n)) := by unfold inSlot; rw [if_pos v]
theorem inSlot_neg {a : Memref sig .scVector .vmem S8x3200 .f32} {sm : DmaSem sig} {n : ℕ} (v : ¬ valid L n) :
    inSlot d L fx a sm n = iprop((∃ g, a.view.loc (thr d L) ↦{fullShare} g) ∗ semVal (thr d L, SemLoc.dma sm) 0) := by
  unfold inSlot; rw [if_neg v]
theorem outSlot_pos {a : Memref sig .scVector .vmem S25600 .f32} {sm : DmaSem sig} {m : ℕ} (h : 2 ≤ m ∧ valid L (m - 2)) :
    outSlot (F := F) d L a sm m = iprop(∃ g, Transfers.Flight countersEmb (thr d L) (SemLoc.dma sm) (default : HIx 22) NN
        iprop(oPiece (F := F) d L (m - 2) ∗ ((stg a).view.loc (thr d L) ↦[(stg a).view.set]{fullShare} g))
      ∗ (a.view.loc (thr d L) ↦[Finset.univ \ (stg a).view.set]{fullShare} g)) := by unfold outSlot; rw [if_pos h]
theorem outSlot_neg {a : Memref sig .scVector .vmem S25600 .f32} {sm : DmaSem sig} {m : ℕ} (h : ¬ (2 ≤ m ∧ valid L (m - 2))) :
    outSlot (F := F) d L a sm m = iprop((∃ g, a.view.loc (thr d L) ↦{fullShare} g) ∗ semVal (thr d L, SemLoc.dma sm) 0) := by
  unfold outSlot; rw [if_neg h]

/-- A fetch in flight, its source window spelt by any offsets equal to piece `n`'s, fills the fetch slot for `n`. -/
theorem fl_in {off : Fin 2 → ℕ} {n : ℕ} (h : off = ![20, pos L n]) (p : ∀ a, off a + S1x3200.size a ≤ S22x1600000.size a) (v : valid L n)
    (a : Memref sig .scVector .vmem S8x3200 .f32) (sm : DmaSem sig) :
    (iprop(∃ g, Transfers.Flight countersEmb (thr d L) (SemLoc.dma sm) (default : HIx 22) NN
        iprop((a.view.loc (thr d L) ↦{fullShare} g)
          ∗ (((xtW).slice (Rect.unit (s := S22x1600000) off S1x3200.size p) (fun _ => rfl)).view.loc (thr d L)
              ↦[((xtW).slice (Rect.unit (s := S22x1600000) off S1x3200.size p) (fun _ => rfl)).view.set]{fullShare} fx))) : sProp 𝕄)
      ⊢ inSlot d L fx a sm n := by
  rw [inSlot_pos d L fx v]
  iintro ⟨%g, H⟩
  have hD : (iprop((a.view.loc (thr d L) ↦{fullShare} g)
          ∗ (((xtW).slice (Rect.unit (s := S22x1600000) off S1x3200.size p) (fun _ => rfl)).view.loc (thr d L)
              ↦[((xtW).slice (Rect.unit (s := S22x1600000) off S1x3200.size p) (fun _ => rfl)).view.set]{fullShare} fx)) : sProp 𝕄)
      ⊢ iprop((a.view.loc (thr d L) ↦{fullShare} g) ∗ xtPiece d L fx n) := by
    iintro ⟨H1, H2⟩
    isplitl [H1]; · iexact H1
    iapply (Entails.of_eq (in_congr d L h p (in_inb L n) fx)); iexact H2
  iexists g
  iapply (Transfers.Flight_mono countersEmb (thr d L) hD); iexact H

/-- A write-out in flight, its destination window spelt by any offsets equal to piece `n`'s, with the rest of the
    staging buffer, fills the write-out slot for `n + 2`. -/
theorem fl_out {off : Fin 1 → ℕ} {n : ℕ} (h : off = ![pos L n]) (p : ∀ a, off a + S3200.size a ≤ S1600000.size a) (v : valid L n)
    (a : Memref sig .scVector .vmem S25600 .f32) (sm : DmaSem sig) :
    (iprop(∃ (f : Buf (Elt F) ((oW).view.loc (thr d L))) (g : Buf (Elt F) (a.view.loc (thr d L))), Transfers.Flight countersEmb (thr d L) (SemLoc.dma sm) (default : HIx 22) NN
        iprop((((oW).slice (Rect.unit (s := S1600000) off S3200.size p) (fun _ => rfl)).view.loc (thr d L)
              ↦[((oW).slice (Rect.unit (s := S1600000) off S3200.size p) (fun _ => rfl)).view.set]{fullShare} f)
          ∗ ((stg a).view.loc (thr d L) ↦[(stg a).view.set]{fullShare} g))
        ∗ (a.view.loc (thr d L) ↦[Finset.univ \ (stg a).view.set]{fullShare} g)) : sProp 𝕄)
      ⊢ outSlot (F := F) d L a sm (n + 2) := by
  rw [outSlot_pos (F := F) d L (m := n + 2) ⟨by omega, by simpa using v⟩]
  iintro ⟨%f, %g, H, R⟩
  have hD : (iprop((((oW).slice (Rect.unit (s := S1600000) off S3200.size p) (fun _ => rfl)).view.loc (thr d L)
              ↦[((oW).slice (Rect.unit (s := S1600000) off S3200.size p) (fun _ => rfl)).view.set]{fullShare} f)
          ∗ ((stg a).view.loc (thr d L) ↦[(stg a).view.set]{fullShare} g)) : sProp 𝕄)
      ⊢ iprop(oPiece (F := F) d L (n + 2 - 2) ∗ ((stg a).view.loc (thr d L) ↦[(stg a).view.set]{fullShare} g)) := by
    rw [Nat.add_sub_cancel]
    iintro ⟨H1, H2⟩
    isplitl [H1]
    · iexists f; iapply (Entails.of_eq (out_congr d L h p (out_inb L n) f)); iexact H1
    · iexact H2
  iexists g
  isplitl [H]
  · iapply (Transfers.Flight_mono countersEmb (thr d L) hD); iexact H
  · iexact R

/-! The pieces outside the slots, from one trip to the next. -/
def xCore (k : ℕ) : Finset ℕ := (Finset.range 18).filter fun n => n ≠ 2 * k ∧ n ≠ 2 * k + 1 ∧ n ≠ 2 * k + 2 ∧ n ≠ 2 * k + 3
def oCore (k : ℕ) : Finset ℕ := (Finset.range 18).filter fun n => n + 2 ≠ 2 * k ∧ n + 2 ≠ 2 * k + 1 ∧ n ≠ 2 * k ∧ n ≠ 2 * k + 1

omit [FloatOps F] in
theorem xSet_out (Φ : ℕ → sProp 𝕄) (k : ℕ) (hk : k < 8) : bigSep (xSet k) Φ = iprop(Φ (2 * k + 2) ∗ Φ (2 * k + 3) ∗ bigSep (xCore k) Φ) := by
  have e : ((xSet k).erase (2 * k + 2)).erase (2 * k + 3) = xCore k := by
    ext n; simp only [xSet, xCore, Finset.mem_erase, Finset.mem_filter, Finset.mem_range]; omega
  rw [← e]; exact two_out (by simp only [xSet, Finset.mem_filter, Finset.mem_range]; omega) (by simp only [xSet, Finset.mem_filter, Finset.mem_range]; omega) (by omega)
omit [FloatOps F] in
theorem xSet_in (Φ : ℕ → sProp 𝕄) (k : ℕ) (hk : k < 8) : bigSep (xSet (k + 1)) Φ = iprop(Φ (2 * k) ∗ Φ (2 * k + 1) ∗ bigSep (xCore k) Φ) := by
  have e : ((xSet (k + 1)).erase (2 * k)).erase (2 * k + 1) = xCore k := by
    ext n; simp only [xSet, xCore, Finset.mem_erase, Finset.mem_filter, Finset.mem_range]; omega
  rw [← e]; exact two_out (by simp only [xSet, Finset.mem_filter, Finset.mem_range]; omega) (by simp only [xSet, Finset.mem_filter, Finset.mem_range]; omega) (by omega)
omit [FloatOps F] in
theorem oSet_out (Φ : ℕ → sProp 𝕄) (k : ℕ) (hk : k < 8) : bigSep (oSet k) Φ = iprop(Φ (2 * k) ∗ Φ (2 * k + 1) ∗ bigSep (oCore k) Φ) := by
  have e : ((oSet k).erase (2 * k)).erase (2 * k + 1) = oCore k := by
    ext n; simp only [oSet, oCore, Finset.mem_erase, Finset.mem_filter, Finset.mem_range]; omega
  rw [← e]; exact two_out (by simp only [oSet, Finset.mem_filter, Finset.mem_range]; omega) (by simp only [oSet, Finset.mem_filter, Finset.mem_range]; omega) (by omega)
omit [FloatOps F] in
theorem oSet_in (Φ : ℕ → sProp 𝕄) (k : ℕ) (hk : k < 8) (hk1 : 1 ≤ k) :
    bigSep (oSet (k + 1)) Φ = iprop(Φ (2 * k - 2) ∗ Φ (2 * k - 1) ∗ bigSep (oCore k) Φ) := by
  have e : ((oSet (k + 1)).erase (2 * k - 2)).erase (2 * k - 1) = oCore k := by
    ext n; simp only [oSet, oCore, Finset.mem_erase, Finset.mem_filter, Finset.mem_range]; omega
  rw [← e]; exact two_out (by simp only [oSet, Finset.mem_filter, Finset.mem_range]; omega) (by simp only [oSet, Finset.mem_filter, Finset.mem_range]; omega) (by omega)

theorem xP_pos {n : ℕ} (v : valid L n) : xP d L fx n = xtPiece d L fx n := if_pos v
theorem oP_pos {n : ℕ} (v : valid L n) : oP (F := F) d L n = oPiece (F := F) d L n := if_pos v
theorem xP_neg {n : ℕ} (v : ¬ valid L n) : xP d L fx n = iprop(emp) := if_neg v
theorem oP_neg {n : ℕ} (v : ¬ valid L n) : oP (F := F) d L n = iprop(emp) := if_neg v

/-- Piece `n` of the result at its final contents: row 20 of the transposed argument. -/
def oQ (n : ℕ) : sProp 𝕄 :=
  if valid L n then (outM L n).view.loc (thr d L) ↦[(outM L n).view.set]{fullShare} (Cert.Spec.row 20 fx) else iprop(emp)

/-- What a tile is handed for the call: its pieces of row 20 of the transposed argument, at the argument's contents, and
    its pieces of the result at some contents. What it hands back: the same pieces of the argument, and its pieces of
    the result holding the row. -/
def goRes : sProp 𝕄 := iprop(bigSep (Finset.range 18) (xP d L fx) ∗ bigSep (Finset.range 18) (oP (F := F) d L))
def tdRes : sProp 𝕄 := iprop(bigSep (Finset.range 18) (xP d L fx) ∗ bigSep (Finset.range 18) (oQ d L fx))

end Tile

end Cert.Proof.TileK20

end
-- ==== Proof.TileK21Defs.lean ====
/-
  One vector subcore's task of copy kernel 21 (counting from 0): definitions. The task moves its pieces of row 21 of the
  transposed argument (pieces of 3200 consecutive elements, piece number 2·s + c + 32·n for the subcore (c, s) and
  n = 0, 1, … while that number is below 500) into the flat result: each piece is fetched into a staging row, copied
  16 lanes at a time into a flat staging buffer, and written out, two pieces in flight at a time. Here: the pieces as
  memrefs, the program's own spellings of them, the printed conditions as facts about the trip, the two slots' states
  between trips, and what the tile holds outside the slots.
-/
import proofs.«206869_g37898791420194_cont_8to1_b_558_20_alg».proof.Defs
import Idealize.ShloMosaic.Lib.SparseCore.Launch
import Idealize.ShloMosaic.Lib.StableHlo.Run
import Idealize.ShloMosaic.Lib.Pipeline.Kit
import Idealize.ShloMosaic.Lib.Tactic
import proofs.«206869_g37898791420194_cont_8to1_b_558_20_alg».proof.Proof.Gen.KernelIdeal
import proofs.«206869_g37898791420194_cont_8to1_b_558_20_alg».proof.Proof.Gen.KernelIdeal.Skeleton
import proofs.«206869_g37898791420194_cont_8to1_b_558_20_alg».proof.Proof.Spec

noncomputable section

namespace Cert.Proof.TileK21

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

abbrev ΛP : Labels := Pipeline.Sig Λ₀ (Fin 0) fun p => (pcfgs (F := F) p).Adm
abbrev K : SparseCore.Cfg τ sig (ΛP (F := F)) 22 := sc (F := F)
abbrev 𝒱₀ : Variants := Variants.none

abbrev UH : Type := URounds (GSem nD τ sig) ℕ
abbrev UU : Type := UH × Counters

local notation "𝕄" => MT nD τ sig (HIx 22) (Elt F) ℕ UU ℕ

local notation "xtW" => (Memref.whole Cert.KernelIdeal.main_v0_scv : Memref Cert.KernelIdeal.sig Kind.scVector Space.hbm Cert.KernelIdeal.S22x1600000 EltTy.f32)
local notation "oW" => (Memref.whole Cert.KernelIdeal.main_v22_scv : Memref Cert.KernelIdeal.sig Kind.scVector Space.hbm Cert.KernelIdeal.S1600000 EltTy.f32)
local notation "a4" => (Memref.whole Cert.KernelIdeal.cc21_scratch0 : Memref Cert.KernelIdeal.sig Kind.scVector Space.vmem Cert.KernelIdeal.S8x3200 EltTy.f32)
local notation "a5" => (Memref.whole Cert.KernelIdeal.cc21_scratch1 : Memref Cert.KernelIdeal.sig Kind.scVector Space.vmem Cert.KernelIdeal.S8x3200 EltTy.f32)
local notation "a6" => (Memref.whole Cert.KernelIdeal.cc21_scratch2 : Memref Cert.KernelIdeal.sig Kind.scVector Space.vmem Cert.KernelIdeal.S25600 EltTy.f32)
local notation "a7" => (Memref.whole Cert.KernelIdeal.cc21_scratch3 : Memref Cert.KernelIdeal.sig Kind.scVector Space.vmem Cert.KernelIdeal.S25600 EltTy.f32)

variable [FloatOps F]

section Tile

variable (d : Dev nD) (L : grid21.Coords)

abbrev cV (L : grid21.Coords) : Fin τ.nSC := (L 0).castLE hcore21
abbrev jV (L : grid21.Coords) : Fin τ.nSub := (L 1).castLE hsub21
abbrev thr (d : Dev nD) (L : grid21.Coords) : Thread nD τ := V d (cV L) (jV L)

/-- The tile's number 2·s + c, and whether it has sixteen pieces (numbers below 20) or fifteen. -/
abbrev wid (L : grid21.Coords) : ℕ := 2 * (L 1).val + (L 0).val
abbrev big (L : grid21.Coords) : Prop := wid L < 20

omit [FloatOps F] in
theorem wid_lt (L : grid21.Coords) : wid L < 32 := by
  have h0 : (L 0).val < 2 := (L 0).isLt
  have h1 : (L 1).val < 16 := (L 1).isLt
  unfold wid; omega

/-- Piece `n` of the tile exists: `n < 15`, or `n = 15` on a tile with sixteen pieces. It is the piece number
    `wid + 32·n < 500` of the row. -/
def valid (L : grid21.Coords) (n : ℕ) : Prop := n < 15 ∨ (n = 15 ∧ big L)
instance (L : grid21.Coords) (n : ℕ) : Decidable (valid L n) := by unfold valid big; infer_instance

omit [FloatOps F] in
theorem valid_iff (L : grid21.Coords) (n : ℕ) : valid L n ↔ wid L + 32 * n < 500 := by
  have := wid_lt L; unfold valid big; omega

/-- Where piece `n` starts in the row (clamped to the last piece of the row, so that the rectangle is in bounds for
    every `n`; for a valid piece the clamp is idle). -/
abbrev pos (L : grid21.Coords) (n : ℕ) : ℕ := 3200 * min (wid L + 32 * n) 499

omit [FloatOps F] in
theorem pos_valid {L : grid21.Coords} {n : ℕ} (h : valid L n) : pos L n = 6400 * (L 1).val + 3200 * (L 0).val + 102400 * n := by
  have := (valid_iff L n).mp h; unfold pos wid at *; omega

omit [FloatOps F] in
theorem in_inb (L : grid21.Coords) (n : ℕ) : ∀ a, (![21, pos L n] : Fin 2 → ℕ) a + S1x3200.size a ≤ S22x1600000.size a := by
  intro a; fin_cases a
  · show 21 + 1 ≤ 22; omega
  · show pos L n + 3200 ≤ 1600000; unfold pos; omega
omit [FloatOps F] in
theorem out_inb (L : grid21.Coords) (n : ℕ) : ∀ a, (![pos L n] : Fin 1 → ℕ) a + S3200.size a ≤ S1600000.size a := by
  intro a; fin_cases a
  show pos L n + 3200 ≤ 1600000; unfold pos; omega

/-- Piece `n` of row 21 of the transposed argument, and piece `n` of the flat result, as memrefs of the tile. -/
abbrev inM (L : grid21.Coords) (n : ℕ) : Memref sig .scVector .hbm S1x3200 .f32 :=
  (xtW).slice (Rect.unit (s := S22x1600000) ![21, pos L n] S1x3200.size (in_inb L n)) (fun _ => rfl)
abbrev outM (L : grid21.Coords) (n : ℕ) : Memref sig .scVector .hbm S3200 .f32 :=
  (oW).slice (Rect.unit (s := S1600000) ![pos L n] S3200.size (out_inb L n)) (fun _ => rfl)

/-! The program's own slices are these pieces: by the closed forms of its offset functions. -/

omit [FloatOps F] in
theorem off2 {a b : ℕ} (h : a = b) : (![21, a] : Fin 2 → ℕ) = ![21, b] := by rw [h]
omit [FloatOps F] in
theorem off1' {a b : ℕ} (h : a = b) : (![a] : Fin 1 → ℕ) = ![b] := by rw [h]

omit [FloatOps F] in
theorem off_in0 (L : grid21.Coords) (h : valid L 0) : k21_off1 L 0#32 = ![21, pos L 0] :=
  (k21_off1_eq L 0).trans (off2 (by rw [pos_valid h]; simp))
omit [FloatOps F] in
theorem off_in1 (L : grid21.Coords) (h : valid L 1) : k21_off1 L 32#32 = ![21, pos L 1] :=
  (k21_off1_eq L 1).trans (off2 (by rw [pos_valid h]; simp))
omit [FloatOps F] in
theorem off_6 (L : grid21.Coords) (t : Fin k21_t1_loop.trips) (h : valid L (2 * t.val + 2)) : k21_off6 L t = ![21, pos L (2 * t.val + 2)] :=
  (k21_off6_eq L t).trans (off2 (by rw [pos_valid h]; omega))
omit [FloatOps F] in
theorem off_11 (L : grid21.Coords) (t : Fin k21_t1_loop.trips) (h : valid L (2 * t.val + 3)) : k21_off11 L t = ![21, pos L (2 * t.val + 3)] :=
  (k21_off11_eq L t).trans (off2 (by rw [pos_valid h]; omega))
omit [FloatOps F] in
theorem off_5 (L : grid21.Coords) (t : Fin k21_t1_loop.trips) (h : valid L (2 * t.val)) : k21_off5 L t = ![pos L (2 * t.val)] :=
  (k21_off5_eq L t).trans (off1' (by rw [pos_valid h]; omega))
omit [FloatOps F] in
theorem off_10 (L : grid21.Coords) (t : Fin k21_t1_loop.trips) (h : valid L (2 * t.val + 1)) : k21_off10 L t = ![pos L (2 * t.val + 1)] :=
  (k21_off10_eq L t).trans (off1' (by rw [pos_valid h]; omega))

/-- Holding a 1 × 3200 window of the transposed argument, or a 3200 window of the result, by exactly its elements
    says the same whichever way the window's offsets are spelt. -/
theorem in_congr {off off' : Fin 2 → ℕ} (h : off = off') (p : ∀ a, off a + S1x3200.size a ≤ S22x1600000.size a)
    (p' : ∀ a, off' a + S1x3200.size a ≤ S22x1600000.size a) (f : Buf (Elt F) ((xtW).view.loc (thr d L))) :
    (((xtW).slice (Rect.unit (s := S22x1600000) off S1x3200.size p) (fun _ => rfl)).view.loc (thr d L)
        ↦[((xtW).slice (Rect.unit (s := S22x1600000) off S1x3200.size p) (fun _ => rfl)).view.set]{fullShare} f : sProp 𝕄)
      = (((xtW).slice (Rect.unit (s := S22x1600000) off' S1x3200.size p') (fun _ => rfl)).view.loc (thr d L)
        ↦[((xtW).slice (Rect.unit (s := S22x1600000) off' S1x3200.size p') (fun _ => rfl)).view.set]{fullShare} f) := by
  subst h; rfl
theorem out_congr {off off' : Fin 1 → ℕ} (h : off = off') (p : ∀ a, off a + S3200.size a ≤ S1600000.size a)
    (p' : ∀ a, off' a + S3200.size a ≤ S1600000.size a) (f : Buf (Elt F) ((oW).view.loc (thr d L))) :
    (((oW).slice (Rect.unit (s := S1600000) off S3200.size p) (fun _ => rfl)).view.loc (thr d L)
        ↦[((oW).slice (Rect.unit (s := S1600000) off S3200.size p) (fun _ => rfl)).view.set]{fullShare} f : sProp 𝕄)
      = (((oW).slice (Rect.unit (s := S1600000) off' S3200.size p') (fun _ => rfl)).view.loc (thr d L)
        ↦[((oW).slice (Rect.unit (s := S1600000) off' S3200.size p') (fun _ => rfl)).view.set]{fullShare} f) := by
  subst h; rfl

/-! The printed conditions, as facts about the trip and the tile. -/

omit [FloatOps F] in
theorem trips1 : k21_t1_loop.trips = 8 := by decide
omit [FloatOps F] in
theorem cond1_iff : ∀ (t : Fin k21_t1_loop.trips), k21_cond1 t = 1#1 ↔ 1 ≤ t.val := by decide +kernel
omit [FloatOps F] in
theorem cond2_iff : ∀ (L : grid21.Coords) (t : Fin k21_t1_loop.trips), k21_cond2 L t = 1#1 := by decide +kernel
omit [FloatOps F] in
theorem cond3_iff : ∀ (L : grid21.Coords) (t : Fin k21_t1_loop.trips), k21_cond3 L t = 1#1 ↔ t.val ≤ 6 := by decide +kernel
omit [FloatOps F] in
theorem cond4_iff : ∀ (t : Fin k21_t1_loop.trips), k21_cond4 t = 1#1 ↔ 1 ≤ t.val := by decide +kernel
omit [FloatOps F] in
theorem cond5_iff : ∀ (L : grid21.Coords) (t : Fin k21_t1_loop.trips), k21_cond5 L t = 1#1 ↔ (t.val ≤ 6 ∨ big L) := by decide +kernel
omit [FloatOps F] in
theorem cond6_iff : ∀ (L : grid21.Coords) (t : Fin k21_t1_loop.trips), k21_cond6 L t = 1#1 ↔ (t.val ≤ 5 ∨ (t.val = 6 ∧ big L)) := by decide +kernel
omit [FloatOps F] in
theorem cond7_iff : ∀ (L : grid21.Coords), k21_cond7 L = 1#1 := by decide +kernel
omit [FloatOps F] in
theorem cond8_iff : ∀ (L : grid21.Coords), k21_cond8 L = 1#1 ↔ big L := by decide +kernel

variable (O : CellTallies nD τ sig (HIx 22)) (W : Waits sig (HIx 22))
variable (fx : Buf (Elt F) ((xtW).view.loc (thr d L)))

abbrev NN : ℕ := 102400

/-- The 3200-element window of a flat staging buffer that a piece is written out from. -/
abbrev stg (a : Memref sig .scVector .vmem S25600 .f32) : Memref sig .scVector .vmem S3200 .f32 :=
  a.slice (Rect.unit (s := S25600) ![0] S3200.size inb_S25600_S3200_0) (fun _ => rfl)

/-- Piece `n` of the argument row held by exactly its elements, at the argument's contents; piece `n` of the result
    held by exactly its elements, at some contents. -/
abbrev xtPiece (n : ℕ) : sProp 𝕄 := (inM L n).view.loc (thr d L) ↦[(inM L n).view.set]{fullShare} fx
abbrev oPiece (n : ℕ) : sProp 𝕄 := iprop(∃ f, (outM L n).view.loc (thr d L) ↦[(outM L n).view.set]{fullShare} f)

/-- The lane-copy loop of a slot: the staging row keeps its contents, the flat staging buffer holds some contents. -/
def laneInv0 (g4 : Buf (Elt F) ((a4).view.loc (thr d L))) (_ : ℕ) (_ : PUnit) : sProp 𝕄 :=
  iprop(((a4).view.loc (thr d L) ↦{fullShare} g4) ∗ (∃ g, (a6).view.loc (thr d L) ↦{fullShare} g))
def laneInv1 (g5 : Buf (Elt F) ((a5).view.loc (thr d L))) (_ : ℕ) (_ : PUnit) : sProp 𝕄 :=
  iprop(((a5).view.loc (thr d L) ↦{fullShare} g5) ∗ (∃ g, (a7).view.loc (thr d L) ↦{fullShare} g))

/-- A fetch slot before trip work on piece `n`: the piece's fetch in flight (it will hand back the staging row at some
    contents, and the piece), or, when there is no such piece, the slot idle. -/
def inSlot (a : Memref sig .scVector .vmem S8x3200 .f32) (sm : DmaSem sig) (n : ℕ) : sProp 𝕄 :=
  if valid L n then
    iprop(∃ g, Transfers.Flight countersEmb (thr d L) (SemLoc.dma sm) (default : HIx 22) NN
      iprop((a.view.loc (thr d L) ↦{fullShare} g) ∗ xtPiece d L fx n))
  else iprop((∃ g, a.view.loc (thr d L) ↦{fullShare} g) ∗ semVal (thr d L, SemLoc.dma sm) 0)

/-- A write-out slot before trip work on piece `m`: piece `m - 2`'s write-out in flight (it will hand back that piece
    of the result at some contents, and the staging window), the rest of the staging buffer beside it; or idle. -/
def outSlot (a : Memref sig .scVector .vmem S25600 .f32) (sm : DmaSem sig) (m : ℕ) : sProp 𝕄 :=
  if 2 ≤ m ∧ valid L (m - 2) then
    iprop(∃ g, Transfers.Flight countersEmb (thr d L) (SemLoc.dma sm) (default : HIx 22) NN
        iprop(oPiece d L (m - 2) ∗ ((stg a).view.loc (thr d L) ↦[(stg a).view.set]{fullShare} g))
      ∗ (a.view.loc (thr d L) ↦[Finset.univ \ (stg a).view.set]{fullShare} g))
  else iprop((∃ g, a.view.loc (thr d L) ↦{fullShare} g) ∗ semVal (thr d L, SemLoc.dma sm) 0)

/-- Piece `n` when it exists, nothing otherwise. -/
def xP (n : ℕ) : sProp 𝕄 := if valid L n then xtPiece d L fx n else iprop(emp)
def oP (n : ℕ) : sProp 𝕄 := if valid L n then oPiece d L n else iprop(emp)

/-- What the tile holds outside the slots before trip `t`: every piece of the argument row but those being fetched
    (`2t`, `2t + 1`), every piece of the result but those being written out (`2t - 2`, `2t - 1`). -/
def xSet (t : ℕ) : Finset ℕ := (Finset.range 18).filter fun n => n ≠ 2 * t ∧ n ≠ 2 * t + 1
def oSet (t : ℕ) : Finset ℕ := (Finset.range 18).filter fun n => n + 2 ≠ 2 * t ∧ n + 2 ≠ 2 * t + 1

def inv (t : ℕ) (_ : PUnit) : sProp 𝕄 :=
  iprop(Transfers.MayWaits (thr d L) (none : HIx 22) O
    ∗ (∃ W', ⌜∀ p ∈ W', p ∈ W ∨ p.2 = none⌝ ∗ owes (thr d L) O W')
    ∗ bigSep (xSet t) (xP d L fx) ∗ bigSep (oSet t) (oP d L)
    ∗ inSlot d L fx a4 cc21_scratch4.sem (2 * t) ∗ outSlot d L a6 cc21_scratch6.sem (2 * t)
    ∗ inSlot d L fx a5 cc21_scratch5.sem (2 * t + 1) ∗ outSlot d L a7 cc21_scratch7.sem (2 * t + 1))

omit [FloatOps F] in
theorem two_out {Φ : ℕ → sProp 𝕄} {s : Finset ℕ} {a b : ℕ} (ha : a ∈ s) (hb : b ∈ s) (hab : a ≠ b) :
    bigSep s Φ = iprop(Φ a ∗ Φ b ∗ bigSep ((s.erase a).erase b) Φ) := by
  rw [SparseCore.bigSep_erase' ha, SparseCore.bigSep_erase' (Finset.mem_erase.mpr ⟨fun e => hab e.symm, hb⟩)]

omit [FloatOps F] in
theorem range18_split : (Finset.range 18) = insert 0 (insert 1 (xSet 0)) := by decide

theorem xRange_split (v0 : valid L 0) (v1 : valid L 1) :
    bigSep (Finset.range 18) (xP d L fx) = iprop(xtPiece d L fx 0 ∗ xtPiece d L fx 1 ∗ bigSep (xSet 0) (xP d L fx)) := by
  rw [range18_split, SparseCore.bigSep_insert' (by decide), SparseCore.bigSep_insert' (by decide)]
  unfold xP; rw [if_pos v0, if_pos v1]
omit [FloatOps F] in
theorem oSet_zero : oSet 0 = Finset.range 18 := by decide

theorem inSlot_pos {a : Memref sig .scVector .vmem S8x3200 .f32} {sm : DmaSem sig} {n : ℕ} (v : valid L n) :
    inSlot d L fx a sm n = iprop(∃ g, Transfers.Flight countersEmb (thr d L) (SemLoc.dma sm) (default : HIx 22) NN
      iprop((a.view.loc (thr d L) ↦{fullShare} g) ∗ xtPiece d L fx n)) := by unfold inSlot; rw [if_pos v]
theorem inSlot_neg {a : Memref sig .scVector .vmem S8x3200 .f32} {sm : DmaSem sig} {n : ℕ} (v : ¬ valid L n) :
    inSlot d L fx a sm n = iprop((∃ g, a.view.loc (thr d L) ↦{fullShare} g) ∗ semVal (thr d L, SemLoc.dma sm) 0) := by
  unfold inSlot; rw [if_neg v]
theorem outSlot_pos {a : Memref sig .scVector .vmem S25600 .f32} {sm : DmaSem sig} {m : ℕ} (h : 2 ≤ m ∧ valid L (m - 2)) :
    outSlot (F := F) d L a sm m = iprop(∃ g, Transfers.Flight countersEmb (thr d L) (SemLoc.dma sm) (default : HIx 22) NN
        iprop(oPiece (F := F) d L (m - 2) ∗ ((stg a).view.loc (thr d L) ↦[(stg a).view.set]{fullShare} g))
      ∗ (a.view.loc (thr d L) ↦[Finset.univ \ (stg a).view.set]{fullShare} g)) := by unfold outSlot; rw [if_pos h]
theorem outSlot_neg {a : Memref sig .scVector .vmem S25600 .f32} {sm : DmaSem sig} {m : ℕ} (h : ¬ (2 ≤ m ∧ valid L (m - 2))) :
    outSlot (F := F) d L a sm m = iprop((∃ g, a.view.loc (thr d L) ↦{fullShare} g) ∗ semVal (thr d L, SemLoc.dma sm) 0) := by
  unfold outSlot; rw [if_neg h]

/-- A fetch in flight, its source window spelt by any offsets equal to piece `n`'s, fills the fetch slot for `n`. -/
theorem fl_in {off : Fin 2 → ℕ} {n : ℕ} (h : off = ![21, pos L n]) (p : ∀ a, off a + S1x3200.size a ≤ S22x1600000.size a) (v : valid L n)
    (a : Memref sig .scVector .vmem S8x3200 .f32) (sm : DmaSem sig) :
    (iprop(∃ g, Transfers.Flight countersEmb (thr d L) (SemLoc.dma sm) (default : HIx 22) NN
        iprop((a.view.loc (thr d L) ↦{fullShare} g)
          ∗ (((xtW).slice (Rect.unit (s := S22x1600000) off S1x3200.size p) (fun _ => rfl)).view.loc (thr d L)
              ↦[((xtW).slice (Rect.unit (s := S22x1600000) off S1x3200.size p) (fun _ => rfl)).view.set]{fullShare} fx))) : sProp 𝕄)
      ⊢ inSlot d L fx a sm n := by
  rw [inSlot_pos d L fx v]
  iintro ⟨%g, H⟩
  have hD : (iprop((a.view.loc (thr d L) ↦{fullShare} g)
          ∗ (((xtW).slice (Rect.unit (s := S22x1600000) off S1x3200.size p) (fun _ => rfl)).view.loc (thr d L)
              ↦[((xtW).slice (Rect.unit (s := S22x1600000) off S1x3200.size p) (fun _ => rfl)).view.set]{fullShare} fx)) : sProp 𝕄)
      ⊢ iprop((a.view.loc (thr d L) ↦{fullShare} g) ∗ xtPiece d L fx n) := by
    iintro ⟨H1, H2⟩
    isplitl [H1]; · iexact H1
    iapply (Entails.of_eq (in_congr d L h p (in_inb L n) fx)); iexact H2
  iexists g
  iapply (Transfers.Flight_mono countersEmb (thr d L) hD); iexact H

/-- A write-out in flight, its destination window spelt by any offsets equal to piece `n`'s, with the rest of the
    staging buffer, fills the write-out slot for `n + 2`. -/
theorem fl_out {off : Fin 1 → ℕ} {n : ℕ} (h : off = ![pos L n]) (p : ∀ a, off a + S3200.size a ≤ S1600000.size a) (v : valid L n)
    (a : Memref sig .scVector .vmem S25600 .f32) (sm : DmaSem sig) :
    (iprop(∃ (f : Buf (Elt F) ((oW).view.loc (thr d L))) (g : Buf (Elt F) (a.view.loc (thr d L))), Transfers.Flight countersEmb (thr d L) (SemLoc.dma sm) (default : HIx 22) NN
        iprop((((oW).slice (Rect.unit (s := S1600000) off S3200.size p) (fun _ => rfl)).view.loc (thr d L)
              ↦[((oW).slice (Rect.unit (s := S1600000) off S3200.size p) (fun _ => rfl)).view.set]{fullShare} f)
          ∗ ((stg a).view.loc (thr d L) ↦[(stg a).view.set]{fullShare} g))
        ∗ (a.view.loc (thr d L) ↦[Finset.univ \ (stg a).view.set]{fullShare} g)) : sProp 𝕄)
      ⊢ outSlot (F := F) d L a sm (n + 2) := by
  rw [outSlot_pos (F := F) d L (m := n + 2) ⟨by omega, by simpa using v⟩]
  iintro ⟨%f, %g, H, R⟩
  have hD : (iprop((((oW).slice (Rect.unit (s := S1600000) off S3200.size p) (fun _ => rfl)).view.loc (thr d L)
              ↦[((oW).slice (Rect.unit (s := S1600000) off S3200.size p) (fun _ => rfl)).view.set]{fullShare} f)
          ∗ ((stg a).view.loc (thr d L) ↦[(stg a).view.set]{fullShare} g)) : sProp 𝕄)
      ⊢ iprop(oPiece (F := F) d L (n + 2 - 2) ∗ ((stg a).view.loc (thr d L) ↦[(stg a).view.set]{fullShare} g)) := by
    rw [Nat.add_sub_cancel]
    iintro ⟨H1, H2⟩
    isplitl [H1]
    · iexists f; iapply (Entails.of_eq (out_congr d L h p (out_inb L n) f)); iexact H1
    · iexact H2
  iexists g
  isplitl [H]
  · iapply (Transfers.Flight_mono countersEmb (thr d L) hD); iexact H
  · iexact R

/-! The pieces outside the slots, from one trip to the next. -/
def xCore (k : ℕ) : Finset ℕ := (Finset.range 18).filter fun n => n ≠ 2 * k ∧ n ≠ 2 * k + 1 ∧ n ≠ 2 * k + 2 ∧ n ≠ 2 * k + 3
def oCore (k : ℕ) : Finset ℕ := (Finset.range 18).filter fun n => n + 2 ≠ 2 * k ∧ n + 2 ≠ 2 * k + 1 ∧ n ≠ 2 * k ∧ n ≠ 2 * k + 1

omit [FloatOps F] in
theorem xSet_out (Φ : ℕ → sProp 𝕄) (k : ℕ) (hk : k < 8) : bigSep (xSet k) Φ = iprop(Φ (2 * k + 2) ∗ Φ (2 * k + 3) ∗ bigSep (xCore k) Φ) := by
  have e : ((xSet k).erase (2 * k + 2)).erase (2 * k + 3) = xCore k := by
    ext n; simp only [xSet, xCore, Finset.mem_erase, Finset.mem_filter, Finset.mem_range]; omega
  rw [← e]; exact two_out (by simp only [xSet, Finset.mem_filter, Finset.mem_range]; omega) (by simp only [xSet, Finset.mem_filter, Finset.mem_range]; omega) (by omega)
omit [FloatOps F] in
theorem xSet_in (Φ : ℕ → sProp 𝕄) (k : ℕ) (hk : k < 8) : bigSep (xSet (k + 1)) Φ = iprop(Φ (2 * k) ∗ Φ (2 * k + 1) ∗ bigSep (xCore k) Φ) := by
  have e : ((xSet (k + 1)).erase (2 * k)).erase (2 * k + 1) = xCore k := by
    ext n; simp only [xSet, xCore, Finset.mem_erase, Finset.mem_filter, Finset.mem_range]; omega
  rw [← e]; exact two_out (by simp only [xSet, Finset.mem_filter, Finset.mem_range]; omega) (by simp only [xSet, Finset.mem_filter, Finset.mem_range]; omega) (by omega)
omit [FloatOps F] in
theorem oSet_out (Φ : ℕ → sProp 𝕄) (k : ℕ) (hk : k < 8) : bigSep (oSet k) Φ = iprop(Φ (2 * k) ∗ Φ (2 * k + 1) ∗ bigSep (oCore k) Φ) := by
  have e : ((oSet k).erase (2 * k)).erase (2 * k + 1) = oCore k := by
    ext n; simp only [oSet, oCore, Finset.mem_erase, Finset.mem_filter, Finset.mem_range]; omega
  rw [← e]; exact two_out (by simp only [oSet, Finset.mem_filter, Finset.mem_range]; omega) (by simp only [oSet, Finset.mem_filter, Finset.mem_range]; omega) (by omega)
omit [FloatOps F] in
theorem oSet_in (Φ : ℕ → sProp 𝕄) (k : ℕ) (hk : k < 8) (hk1 : 1 ≤ k) :
    bigSep (oSet (k + 1)) Φ = iprop(Φ (2 * k - 2) ∗ Φ (2 * k - 1) ∗ bigSep (oCore k) Φ) := by
  have e : ((oSet (k + 1)).erase (2 * k - 2)).erase (2 * k - 1) = oCore k := by
    ext n; simp only [oSet, oCore, Finset.mem_erase, Finset.mem_filter, Finset.mem_range]; omega
  rw [← e]; exact two_out (by simp only [oSet, Finset.mem_filter, Finset.mem_range]; omega) (by simp only [oSet, Finset.mem_filter, Finset.mem_range]; omega) (by omega)

theorem xP_pos {n : ℕ} (v : valid L n) : xP d L fx n = xtPiece d L fx n := if_pos v
theorem oP_pos {n : ℕ} (v : valid L n) : oP (F := F) d L n = oPiece (F := F) d L n := if_pos v
theorem xP_neg {n : ℕ} (v : ¬ valid L n) : xP d L fx n = iprop(emp) := if_neg v
theorem oP_neg {n : ℕ} (v : ¬ valid L n) : oP (F := F) d L n = iprop(emp) := if_neg v

/-- Piece `n` of the result at its final contents: row 21 of the transposed argument. -/
def oQ (n : ℕ) : sProp 𝕄 :=
  if valid L n then (outM L n).view.loc (thr d L) ↦[(outM L n).view.set]{fullShare} (Cert.Spec.row 21 fx) else iprop(emp)

/-- What a tile is handed for the call: its pieces of row 21 of the transposed argument, at the argument's contents, and
    its pieces of the result at some contents. What it hands back: the same pieces of the argument, and its pieces of
    the result holding the row. -/
def goRes : sProp 𝕄 := iprop(bigSep (Finset.range 18) (xP d L fx) ∗ bigSep (Finset.range 18) (oP (F := F) d L))
def tdRes : sProp 𝕄 := iprop(bigSep (Finset.range 18) (xP d L fx) ∗ bigSep (Finset.range 18) (oQ d L fx))

end Tile

end Cert.Proof.TileK21

end
-- ==== Proof.LaunchP.lean ====
/-
  The launch of the 22 copy kernels, first part: the program as the launch theorem reads it, what the handshakes of
  each call carry (every vector subcore its pieces of row q of the transposed argument and of result q), each kernel's
  task obligation from the proof of its body, how a SparseCore's share splits among its sixteen tasks, and the launch
  element of the ghost state.
-/
import proofs.«206869_g37898791420194_cont_8to1_b_558_20_alg».proof.Proof.LaunchPieces
import proofs.«206869_g37898791420194_cont_8to1_b_558_20_alg».proof.Proof.TileK0Defs
import proofs.«206869_g37898791420194_cont_8to1_b_558_20_alg».proof.Proof.TileK1Defs
import proofs.«206869_g37898791420194_cont_8to1_b_558_20_alg».proof.Proof.TileK2Defs
import proofs.«206869_g37898791420194_cont_8to1_b_558_20_alg».proof.Proof.TileK3Defs
import proofs.«206869_g37898791420194_cont_8to1_b_558_20_alg».proof.Proof.TileK4Defs
import proofs.«206869_g37898791420194_cont_8to1_b_558_20_alg».proof.Proof.TileK5Defs
import proofs.«206869_g37898791420194_cont_8to1_b_558_20_alg».proof.Proof.TileK6Defs
import proofs.«206869_g37898791420194_cont_8to1_b_558_20_alg».proof.Proof.TileK7Defs
import proofs.«206869_g37898791420194_cont_8to1_b_558_20_alg».proof.Proof.TileK8Defs
import proofs.«206869_g37898791420194_cont_8to1_b_558_20_alg».proof.Proof.TileK9Defs
import proofs.«206869_g37898791420194_cont_8to1_b_558_20_alg».proof.Proof.TileK10Defs
import proofs.«206869_g37898791420194_cont_8to1_b_558_20_alg».proof.Proof.TileK11Defs
import proofs.«206869_g37898791420194_cont_8to1_b_558_20_alg».proof.Proof.TileK12Defs
import proofs.«206869_g37898791420194_cont_8to1_b_558_20_alg».proof.Proof.TileK13Defs
import proofs.«206869_g37898791420194_cont_8to1_b_558_20_alg».proof.Proof.TileK14Defs
import proofs.«206869_g37898791420194_cont_8to1_b_558_20_alg».proof.Proof.TileK15Defs
import proofs.«206869_g37898791420194_cont_8to1_b_558_20_alg».proof.Proof.TileK16Defs
import proofs.«206869_g37898791420194_cont_8to1_b_558_20_alg».proof.Proof.TileK17Defs
import proofs.«206869_g37898791420194_cont_8to1_b_558_20_alg».proof.Proof.TileK18Defs
import proofs.«206869_g37898791420194_cont_8to1_b_558_20_alg».proof.Proof.TileK19Defs
import proofs.«206869_g37898791420194_cont_8to1_b_558_20_alg».proof.Proof.TileK20Defs
import proofs.«206869_g37898791420194_cont_8to1_b_558_20_alg».proof.Proof.TileK21Defs

noncomputable section

namespace Cert.Proof.LaunchKI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 22 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- Every call is a vector-subcore kernel on both SparseCores and all sixteen vector subcores of each. -/
theorem nCore_eq (q : Fin 22) : (K (F := F)).nCore q = 2 := (by decide : ∀ q, scNCore q = 2) q
theorem nSub_eq (q : Fin 22) : (K (F := F)).nSub q = 16 := (by decide : ∀ q, scNSub q = 16) q
theorem kind_eq (q : Fin 22) : (K (F := F)).kind q = .scVector := (by decide : ∀ q, scKind q = .scVector) q

abbrev UH : Type := URounds (GSem nD τ sig) ℕ
abbrev UU : Type := UH × Counters

local notation "𝕄" => MT nD τ sig (HIx 22) (Elt F) ℕ UU ℕ

abbrev EH : Emb UH (MT nD τ sig (HIx 22) (Elt F) ℕ UU ℕ) := embL

variable (m : (ℓ : Loc nD τ sig) → Buf (Elt F) ℓ) (ρ : Dev nD → PrngReg)

variable [FloatOps F]

/-- The transposed argument: what @main's first line leaves in its result buffer, the array every kernel reads. -/
abbrev ℓa (d : Dev nD) : Loc nD τ sig := (SparseCore.T d).loc main_arg0
abbrev ℓx (d : Dev nD) : Loc nD τ sig := (SparseCore.T d).loc main_v0
abbrev xt (d : Dev nD) : Buf (Elt F) (ℓx d) :=
  transpose S22x1600000 [1, 0] (m (ℓa d)) transposes_S1600000x22_S22x1600000_1_0

open Cert.Proof.Pieces (crd)

/-- What the task of vector subcore (c, s) in call q is handed, and what it hands back. -/
def goQ (q : Fin 22) (d : Dev nD) (c : Fin 2) (s : Fin 16) : sProp 𝕄 := match q with
  | 0 => TileK0.goRes d (crd c s) (xt m d)
  | 1 => TileK1.goRes d (crd c s) (xt m d)
  | 2 => TileK2.goRes d (crd c s) (xt m d)
  | 3 => TileK3.goRes d (crd c s) (xt m d)
  | 4 => TileK4.goRes d (crd c s) (xt m d)
  | 5 => TileK5.goRes d (crd c s) (xt m d)
  | 6 => TileK6.goRes d (crd c s) (xt m d)
  | 7 => TileK7.goRes d (crd c s) (xt m d)
  | 8 => TileK8.goRes d (crd c s) (xt m d)
  | 9 => TileK9.goRes d (crd c s) (xt m d)
  | 10 => TileK10.goRes d (crd c s) (xt m d)
  | 11 => TileK11.goRes d (crd c s) (xt m d)
  | 12 => TileK12.goRes d (crd c s) (xt m d)
  | 13 => TileK13.goRes d (crd c s) (xt m d)
  | 14 => TileK14.goRes d (crd c s) (xt m d)
  | 15 => TileK15.goRes d (crd c s) (xt m d)
  | 16 => TileK16.goRes d (crd c s) (xt m d)
  | 17 => TileK17.goRes d (crd c s) (xt m d)
  | 18 => TileK18.goRes d (crd c s) (xt m d)
  | 19 => TileK19.goRes d (crd c s) (xt m d)
  | 20 => TileK20.goRes d (crd c s) (xt m d)
  | 21 => TileK21.goRes d (crd c s) (xt m d)
  | ⟨_ + 22, h⟩ => absurd h (Nat.not_lt.2 (Nat.le_add_left _ _))
def tdQ (q : Fin 22) (d : Dev nD) (c : Fin 2) (s : Fin 16) : sProp 𝕄 := match q with
  | 0 => TileK0.tdRes d (crd c s) (xt m d)
  | 1 => TileK1.tdRes d (crd c s) (xt m d)
  | 2 => TileK2.tdRes d (crd c s) (xt m d)
  | 3 => TileK3.tdRes d (crd c s) (xt m d)
  | 4 => TileK4.tdRes d (crd c s) (xt m d)
  | 5 => TileK5.tdRes d (crd c s) (xt m d)
  | 6 => TileK6.tdRes d (crd c s) (xt m d)
  | 7 => TileK7.tdRes d (crd c s) (xt m d)
  | 8 => TileK8.tdRes d (crd c s) (xt m d)
  | 9 => TileK9.tdRes d (crd c s) (xt m d)
  | 10 => TileK10.tdRes d (crd c s) (xt m d)
  | 11 => TileK11.tdRes d (crd c s) (xt m d)
  | 12 => TileK12.tdRes d (crd c s) (xt m d)
  | 13 => TileK13.tdRes d (crd c s) (xt m d)
  | 14 => TileK14.tdRes d (crd c s) (xt m d)
  | 15 => TileK15.tdRes d (crd c s) (xt m d)
  | 16 => TileK16.tdRes d (crd c s) (xt m d)
  | 17 => TileK17.tdRes d (crd c s) (xt m d)
  | 18 => TileK18.tdRes d (crd c s) (xt m d)
  | 19 => TileK19.tdRes d (crd c s) (xt m d)
  | 20 => TileK20.tdRes d (crd c s) (xt m d)
  | 21 => TileK21.tdRes d (crd c s) (xt m d)
  | ⟨_ + 22, h⟩ => absurd h (Nat.not_lt.2 (Nat.le_add_left _ _))

omit [FloatOps F] in
theorem storable_ite {A B : sProp 𝕄} (p : Prop) [Decidable p] [BI.Storable (upEmb : UEmb _ 𝕄) A] [BI.Storable (upEmb : UEmb _ 𝕄) B] :
    BI.Storable (upEmb : UEmb _ 𝕄) (if p then A else B) := by split <;> infer_instance

set_option synthInstance.maxHeartbeats 400000 in
instance go0_storable (d : Dev nD) (L : grid0.Coords) (fx) : BI.Storable (upEmb : UEmb _ 𝕄) (TileK0.goRes (F := F) d L fx) := by
  unfold TileK0.goRes TileK0.xP TileK0.oP
  have := fun n => storable_ite (F := F) (A := TileK0.xtPiece d L fx n) (B := iprop(emp)) (TileK0.valid L n)
  have := fun n => storable_ite (F := F) (A := TileK0.oPiece (F := F) d L n) (B := iprop(emp)) (TileK0.valid L n)
  infer_instance
set_option synthInstance.maxHeartbeats 400000 in
instance td0_storable (d : Dev nD) (L : grid0.Coords) (fx) : BI.Storable (upEmb : UEmb _ 𝕄) (TileK0.tdRes (F := F) d L fx) := by
  unfold TileK0.tdRes TileK0.xP TileK0.oQ
  have := fun n => storable_ite (F := F) (A := TileK0.xtPiece d L fx n) (B := iprop(emp)) (TileK0.valid L n)
  have := fun n => storable_ite (F := F) (A := ((TileK0.outM L n).view.loc (TileK0.thr d L) ↦[(TileK0.outM L n).view.set]{fullShare} (Cert.Spec.row 0 fx) : sProp 𝕄)) (B := iprop(emp)) (TileK0.valid L n)
  infer_instance
set_option synthInstance.maxHeartbeats 400000 in
instance go1_storable (d : Dev nD) (L : grid1.Coords) (fx) : BI.Storable (upEmb : UEmb _ 𝕄) (TileK1.goRes (F := F) d L fx) := by
  unfold TileK1.goRes TileK1.xP TileK1.oP
  have := fun n => storable_ite (F := F) (A := TileK1.xtPiece d L fx n) (B := iprop(emp)) (TileK1.valid L n)
  have := fun n => storable_ite (F := F) (A := TileK1.oPiece (F := F) d L n) (B := iprop(emp)) (TileK1.valid L n)
  infer_instance
set_option synthInstance.maxHeartbeats 400000 in
instance td1_storable (d : Dev nD) (L : grid1.Coords) (fx) : BI.Storable (upEmb : UEmb _ 𝕄) (TileK1.tdRes (F := F) d L fx) := by
  unfold TileK1.tdRes TileK1.xP TileK1.oQ
  have := fun n => storable_ite (F := F) (A := TileK1.xtPiece d L fx n) (B := iprop(emp)) (TileK1.valid L n)
  have := fun n => storable_ite (F := F) (A := ((TileK1.outM L n).view.loc (TileK1.thr d L) ↦[(TileK1.outM L n).view.set]{fullShare} (Cert.Spec.row 1 fx) : sProp 𝕄)) (B := iprop(emp)) (TileK1.valid L n)
  infer_instance
set_option synthInstance.maxHeartbeats 400000 in
instance go2_storable (d : Dev nD) (L : grid2.Coords) (fx) : BI.Storable (upEmb : UEmb _ 𝕄) (TileK2.goRes (F := F) d L fx) := by
  unfold TileK2.goRes TileK2.xP TileK2.oP
  have := fun n => storable_ite (F := F) (A := TileK2.xtPiece d L fx n) (B := iprop(emp)) (TileK2.valid L n)
  have := fun n => storable_ite (F := F) (A := TileK2.oPiece (F := F) d L n) (B := iprop(emp)) (TileK2.valid L n)
  infer_instance
set_option synthInstance.maxHeartbeats 400000 in
instance td2_storable (d : Dev nD) (L : grid2.Coords) (fx) : BI.Storable (upEmb : UEmb _ 𝕄) (TileK2.tdRes (F := F) d L fx) := by
  unfold TileK2.tdRes TileK2.xP TileK2.oQ
  have := fun n => storable_ite (F := F) (A := TileK2.xtPiece d L fx n) (B := iprop(emp)) (TileK2.valid L n)
  have := fun n => storable_ite (F := F) (A := ((TileK2.outM L n).view.loc (TileK2.thr d L) ↦[(TileK2.outM L n).view.set]{fullShare} (Cert.Spec.row 2 fx) : sProp 𝕄)) (B := iprop(emp)) (TileK2.valid L n)
  infer_instance
set_option synthInstance.maxHeartbeats 400000 in
instance go3_storable (d : Dev nD) (L : grid3.Coords) (fx) : BI.Storable (upEmb : UEmb _ 𝕄) (TileK3.goRes (F := F) d L fx) := by
  unfold TileK3.goRes TileK3.xP TileK3.oP
  have := fun n => storable_ite (F := F) (A := TileK3.xtPiece d L fx n) (B := iprop(emp)) (TileK3.valid L n)
  have := fun n => storable_ite (F := F) (A := TileK3.oPiece (F := F) d L n) (B := iprop(emp)) (TileK3.valid L n)
  infer_instance
set_option synthInstance.maxHeartbeats 400000 in
instance td3_storable (d : Dev nD) (L : grid3.Coords) (fx) : BI.Storable (upEmb : UEmb _ 𝕄) (TileK3.tdRes (F := F) d L fx) := by
  unfold TileK3.tdRes TileK3.xP TileK3.oQ
  have := fun n => storable_ite (F := F) (A := TileK3.xtPiece d L fx n) (B := iprop(emp)) (TileK3.valid L n)
  have := fun n => storable_ite (F := F) (A := ((TileK3.outM L n).view.loc (TileK3.thr d L) ↦[(TileK3.outM L n).view.set]{fullShare} (Cert.Spec.row 3 fx) : sProp 𝕄)) (B := iprop(emp)) (TileK3.valid L n)
  infer_instance
set_option synthInstance.maxHeartbeats 400000 in
instance go4_storable (d : Dev nD) (L : grid4.Coords) (fx) : BI.Storable (upEmb : UEmb _ 𝕄) (TileK4.goRes (F := F) d L fx) := by
  unfold TileK4.goRes TileK4.xP TileK4.oP
  have := fun n => storable_ite (F := F) (A := TileK4.xtPiece d L fx n) (B := iprop(emp)) (TileK4.valid L n)
  have := fun n => storable_ite (F := F) (A := TileK4.oPiece (F := F) d L n) (B := iprop(emp)) (TileK4.valid L n)
  infer_instance
set_option synthInstance.maxHeartbeats 400000 in
instance td4_storable (d : Dev nD) (L : grid4.Coords) (fx) : BI.Storable (upEmb : UEmb _ 𝕄) (TileK4.tdRes (F := F) d L fx) := by
  unfold TileK4.tdRes TileK4.xP TileK4.oQ
  have := fun n => storable_ite (F := F) (A := TileK4.xtPiece d L fx n) (B := iprop(emp)) (TileK4.valid L n)
  have := fun n => storable_ite (F := F) (A := ((TileK4.outM L n).view.loc (TileK4.thr d L) ↦[(TileK4.outM L n).view.set]{fullShare} (Cert.Spec.row 4 fx) : sProp 𝕄)) (B := iprop(emp)) (TileK4.valid L n)
  infer_instance
set_option synthInstance.maxHeartbeats 400000 in
instance go5_storable (d : Dev nD) (L : grid5.Coords) (fx) : BI.Storable (upEmb : UEmb _ 𝕄) (TileK5.goRes (F := F) d L fx) := by
  unfold TileK5.goRes TileK5.xP TileK5.oP
  have := fun n => storable_ite (F := F) (A := TileK5.xtPiece d L fx n) (B := iprop(emp)) (TileK5.valid L n)
  have := fun n => storable_ite (F := F) (A := TileK5.oPiece (F := F) d L n) (B := iprop(emp)) (TileK5.valid L n)
  infer_instance
set_option synthInstance.maxHeartbeats 400000 in
instance td5_storable (d : Dev nD) (L : grid5.Coords) (fx) : BI.Storable (upEmb : UEmb _ 𝕄) (TileK5.tdRes (F := F) d L fx) := by
  unfold TileK5.tdRes TileK5.xP TileK5.oQ
  have := fun n => storable_ite (F := F) (A := TileK5.xtPiece d L fx n) (B := iprop(emp)) (TileK5.valid L n)
  have := fun n => storable_ite (F := F) (A := ((TileK5.outM L n).view.loc (TileK5.thr d L) ↦[(TileK5.outM L n).view.set]{fullShare} (Cert.Spec.row 5 fx) : sProp 𝕄)) (B := iprop(emp)) (TileK5.valid L n)
  infer_instance
set_option synthInstance.maxHeartbeats 400000 in
instance go6_storable (d : Dev nD) (L : grid6.Coords) (fx) : BI.Storable (upEmb : UEmb _ 𝕄) (TileK6.goRes (F := F) d L fx) := by
  unfold TileK6.goRes TileK6.xP TileK6.oP
  have := fun n => storable_ite (F := F) (A := TileK6.xtPiece d L fx n) (B := iprop(emp)) (TileK6.valid L n)
  have := fun n => storable_ite (F := F) (A := TileK6.oPiece (F := F) d L n) (B := iprop(emp)) (TileK6.valid L n)
  infer_instance
set_option synthInstance.maxHeartbeats 400000 in
instance td6_storable (d : Dev nD) (L : grid6.Coords) (fx) : BI.Storable (upEmb : UEmb _ 𝕄) (TileK6.tdRes (F := F) d L fx) := by
  unfold TileK6.tdRes TileK6.xP TileK6.oQ
  have := fun n => storable_ite (F := F) (A := TileK6.xtPiece d L fx n) (B := iprop(emp)) (TileK6.valid L n)
  have := fun n => storable_ite (F := F) (A := ((TileK6.outM L n).view.loc (TileK6.thr d L) ↦[(TileK6.outM L n).view.set]{fullShare} (Cert.Spec.row 6 fx) : sProp 𝕄)) (B := iprop(emp)) (TileK6.valid L n)
  infer_instance
set_option synthInstance.maxHeartbeats 400000 in
instance go7_storable (d : Dev nD) (L : grid7.Coords) (fx) : BI.Storable (upEmb : UEmb _ 𝕄) (TileK7.goRes (F := F) d L fx) := by
  unfold TileK7.goRes TileK7.xP TileK7.oP
  have := fun n => storable_ite (F := F) (A := TileK7.xtPiece d L fx n) (B := iprop(emp)) (TileK7.valid L n)
  have := fun n => storable_ite (F := F) (A := TileK7.oPiece (F := F) d L n) (B := iprop(emp)) (TileK7.valid L n)
  infer_instance
set_option synthInstance.maxHeartbeats 400000 in
instance td7_storable (d : Dev nD) (L : grid7.Coords) (fx) : BI.Storable (upEmb : UEmb _ 𝕄) (TileK7.tdRes (F := F) d L fx) := by
  unfold TileK7.tdRes TileK7.xP TileK7.oQ
  have := fun n => storable_ite (F := F) (A := TileK7.xtPiece d L fx n) (B := iprop(emp)) (TileK7.valid L n)
  have := fun n => storable_ite (F := F) (A := ((TileK7.outM L n).view.loc (TileK7.thr d L) ↦[(TileK7.outM L n).view.set]{fullShare} (Cert.Spec.row 7 fx) : sProp 𝕄)) (B := iprop(emp)) (TileK7.valid L n)
  infer_instance
set_option synthInstance.maxHeartbeats 400000 in
instance go8_storable (d : Dev nD) (L : grid8.Coords) (fx) : BI.Storable (upEmb : UEmb _ 𝕄) (TileK8.goRes (F := F) d L fx) := by
  unfold TileK8.goRes TileK8.xP TileK8.oP
  have := fun n => storable_ite (F := F) (A := TileK8.xtPiece d L fx n) (B := iprop(emp)) (TileK8.valid L n)
  have := fun n => storable_ite (F := F) (A := TileK8.oPiece (F := F) d L n) (B := iprop(emp)) (TileK8.valid L n)
  infer_instance
set_option synthInstance.maxHeartbeats 400000 in
instance td8_storable (d : Dev nD) (L : grid8.Coords) (fx) : BI.Storable (upEmb : UEmb _ 𝕄) (TileK8.tdRes (F := F) d L fx) := by
  unfold TileK8.tdRes TileK8.xP TileK8.oQ
  have := fun n => storable_ite (F := F) (A := TileK8.xtPiece d L fx n) (B := iprop(emp)) (TileK8.valid L n)
  have := fun n => storable_ite (F := F) (A := ((TileK8.outM L n).view.loc (TileK8.thr d L) ↦[(TileK8.outM L n).view.set]{fullShare} (Cert.Spec.row 8 fx) : sProp 𝕄)) (B := iprop(emp)) (TileK8.valid L n)
  infer_instance
set_option synthInstance.maxHeartbeats 400000 in
instance go9_storable (d : Dev nD) (L : grid9.Coords) (fx) : BI.Storable (upEmb : UEmb _ 𝕄) (TileK9.goRes (F := F) d L fx) := by
  unfold TileK9.goRes TileK9.xP TileK9.oP
  have := fun n => storable_ite (F := F) (A := TileK9.xtPiece d L fx n) (B := iprop(emp)) (TileK9.valid L n)
  have := fun n => storable_ite (F := F) (A := TileK9.oPiece (F := F) d L n) (B := iprop(emp)) (TileK9.valid L n)
  infer_instance
set_option synthInstance.maxHeartbeats 400000 in
instance td9_storable (d : Dev nD) (L : grid9.Coords) (fx) : BI.Storable (upEmb : UEmb _ 𝕄) (TileK9.tdRes (F := F) d L fx) := by
  unfold TileK9.tdRes TileK9.xP TileK9.oQ
  have := fun n => storable_ite (F := F) (A := TileK9.xtPiece d L fx n) (B := iprop(emp)) (TileK9.valid L n)
  have := fun n => storable_ite (F := F) (A := ((TileK9.outM L n).view.loc (TileK9.thr d L) ↦[(TileK9.outM L n).view.set]{fullShare} (Cert.Spec.row 9 fx) : sProp 𝕄)) (B := iprop(emp)) (TileK9.valid L n)
  infer_instance
set_option synthInstance.maxHeartbeats 400000 in
instance go10_storable (d : Dev nD) (L : grid10.Coords) (fx) : BI.Storable (upEmb : UEmb _ 𝕄) (TileK10.goRes (F := F) d L fx) := by
  unfold TileK10.goRes TileK10.xP TileK10.oP
  have := fun n => storable_ite (F := F) (A := TileK10.xtPiece d L fx n) (B := iprop(emp)) (TileK10.valid L n)
  have := fun n => storable_ite (F := F) (A := TileK10.oPiece (F := F) d L n) (B := iprop(emp)) (TileK10.valid L n)
  infer_instance
set_option synthInstance.maxHeartbeats 400000 in
instance td10_storable (d : Dev nD) (L : grid10.Coords) (fx) : BI.Storable (upEmb : UEmb _ 𝕄) (TileK10.tdRes (F := F) d L fx) := by
  unfold TileK10.tdRes TileK10.xP TileK10.oQ
  have := fun n => storable_ite (F := F) (A := TileK10.xtPiece d L fx n) (B := iprop(emp)) (TileK10.valid L n)
  have := fun n => storable_ite (F := F) (A := ((TileK10.outM L n).view.loc (TileK10.thr d L) ↦[(TileK10.outM L n).view.set]{fullShare} (Cert.Spec.row 10 fx) : sProp 𝕄)) (B := iprop(emp)) (TileK10.valid L n)
  infer_instance
set_option synthInstance.maxHeartbeats 400000 in
instance go11_storable (d : Dev nD) (L : grid11.Coords) (fx) : BI.Storable (upEmb : UEmb _ 𝕄) (TileK11.goRes (F := F) d L fx) := by
  unfold TileK11.goRes TileK11.xP TileK11.oP
  have := fun n => storable_ite (F := F) (A := TileK11.xtPiece d L fx n) (B := iprop(emp)) (TileK11.valid L n)
  have := fun n => storable_ite (F := F) (A := TileK11.oPiece (F := F) d L n) (B := iprop(emp)) (TileK11.valid L n)
  infer_instance
set_option synthInstance.maxHeartbeats 400000 in
instance td11_storable (d : Dev nD) (L : grid11.Coords) (fx) : BI.Storable (upEmb : UEmb _ 𝕄) (TileK11.tdRes (F := F) d L fx) := by
  unfold TileK11.tdRes TileK11.xP TileK11.oQ
  have := fun n => storable_ite (F := F) (A := TileK11.xtPiece d L fx n) (B := iprop(emp)) (TileK11.valid L n)
  have := fun n => storable_ite (F := F) (A := ((TileK11.outM L n).view.loc (TileK11.thr d L) ↦[(TileK11.outM L n).view.set]{fullShare} (Cert.Spec.row 11 fx) : sProp 𝕄)) (B := iprop(emp)) (TileK11.valid L n)
  infer_instance
set_option synthInstance.maxHeartbeats 400000 in
instance go12_storable (d : Dev nD) (L : grid12.Coords) (fx) : BI.Storable (upEmb : UEmb _ 𝕄) (TileK12.goRes (F := F) d L fx) := by
  unfold TileK12.goRes TileK12.xP TileK12.oP
  have := fun n => storable_ite (F := F) (A := TileK12.xtPiece d L fx n) (B := iprop(emp)) (TileK12.valid L n)
  have := fun n => storable_ite (F := F) (A := TileK12.oPiece (F := F) d L n) (B := iprop(emp)) (TileK12.valid L n)
  infer_instance
set_option synthInstance.maxHeartbeats 400000 in
instance td12_storable (d : Dev nD) (L : grid12.Coords) (fx) : BI.Storable (upEmb : UEmb _ 𝕄) (TileK12.tdRes (F := F) d L fx) := by
  unfold TileK12.tdRes TileK12.xP TileK12.oQ
  have := fun n => storable_ite (F := F) (A := TileK12.xtPiece d L fx n) (B := iprop(emp)) (TileK12.valid L n)
  have := fun n => storable_ite (F := F) (A := ((TileK12.outM L n).view.loc (TileK12.thr d L) ↦[(TileK12.outM L n).view.set]{fullShare} (Cert.Spec.row 12 fx) : sProp 𝕄)) (B := iprop(emp)) (TileK12.valid L n)
  infer_instance
set_option synthInstance.maxHeartbeats 400000 in
instance go13_storable (d : Dev nD) (L : grid13.Coords) (fx) : BI.Storable (upEmb : UEmb _ 𝕄) (TileK13.goRes (F := F) d L fx) := by
  unfold TileK13.goRes TileK13.xP TileK13.oP
  have := fun n => storable_ite (F := F) (A := TileK13.xtPiece d L fx n) (B := iprop(emp)) (TileK13.valid L n)
  have := fun n => storable_ite (F := F) (A := TileK13.oPiece (F := F) d L n) (B := iprop(emp)) (TileK13.valid L n)
  infer_instance
set_option synthInstance.maxHeartbeats 400000 in
instance td13_storable (d : Dev nD) (L : grid13.Coords) (fx) : BI.Storable (upEmb : UEmb _ 𝕄) (TileK13.tdRes (F := F) d L fx) := by
  unfold TileK13.tdRes TileK13.xP TileK13.oQ
  have := fun n => storable_ite (F := F) (A := TileK13.xtPiece d L fx n) (B := iprop(emp)) (TileK13.valid L n)
  have := fun n => storable_ite (F := F) (A := ((TileK13.outM L n).view.loc (TileK13.thr d L) ↦[(TileK13.outM L n).view.set]{fullShare} (Cert.Spec.row 13 fx) : sProp 𝕄)) (B := iprop(emp)) (TileK13.valid L n)
  infer_instance
set_option synthInstance.maxHeartbeats 400000 in
instance go14_storable (d : Dev nD) (L : grid14.Coords) (fx) : BI.Storable (upEmb : UEmb _ 𝕄) (TileK14.goRes (F := F) d L fx) := by
  unfold TileK14.goRes TileK14.xP TileK14.oP
  have := fun n => storable_ite (F := F) (A := TileK14.xtPiece d L fx n) (B := iprop(emp)) (TileK14.valid L n)
  have := fun n => storable_ite (F := F) (A := TileK14.oPiece (F := F) d L n) (B := iprop(emp)) (TileK14.valid L n)
  infer_instance
set_option synthInstance.maxHeartbeats 400000 in
instance td14_storable (d : Dev nD) (L : grid14.Coords) (fx) : BI.Storable (upEmb : UEmb _ 𝕄) (TileK14.tdRes (F := F) d L fx) := by
  unfold TileK14.tdRes TileK14.xP TileK14.oQ
  have := fun n => storable_ite (F := F) (A := TileK14.xtPiece d L fx n) (B := iprop(emp)) (TileK14.valid L n)
  have := fun n => storable_ite (F := F) (A := ((TileK14.outM L n).view.loc (TileK14.thr d L) ↦[(TileK14.outM L n).view.set]{fullShare} (Cert.Spec.row 14 fx) : sProp 𝕄)) (B := iprop(emp)) (TileK14.valid L n)
  infer_instance
set_option synthInstance.maxHeartbeats 400000 in
instance go15_storable (d : Dev nD) (L : grid15.Coords) (fx) : BI.Storable (upEmb : UEmb _ 𝕄) (TileK15.goRes (F := F) d L fx) := by
  unfold TileK15.goRes TileK15.xP TileK15.oP
  have := fun n => storable_ite (F := F) (A := TileK15.xtPiece d L fx n) (B := iprop(emp)) (TileK15.valid L n)
  have := fun n => storable_ite (F := F) (A := TileK15.oPiece (F := F) d L n) (B := iprop(emp)) (TileK15.valid L n)
  infer_instance
set_option synthInstance.maxHeartbeats 400000 in
instance td15_storable (d : Dev nD) (L : grid15.Coords) (fx) : BI.Storable (upEmb : UEmb _ 𝕄) (TileK15.tdRes (F := F) d L fx) := by
  unfold TileK15.tdRes TileK15.xP TileK15.oQ
  have := fun n => storable_ite (F := F) (A := TileK15.xtPiece d L fx n) (B := iprop(emp)) (TileK15.valid L n)
  have := fun n => storable_ite (F := F) (A := ((TileK15.outM L n).view.loc (TileK15.thr d L) ↦[(TileK15.outM L n).view.set]{fullShare} (Cert.Spec.row 15 fx) : sProp 𝕄)) (B := iprop(emp)) (TileK15.valid L n)
  infer_instance
set_option synthInstance.maxHeartbeats 400000 in
instance go16_storable (d : Dev nD) (L : grid16.Coords) (fx) : BI.Storable (upEmb : UEmb _ 𝕄) (TileK16.goRes (F := F) d L fx) := by
  unfold TileK16.goRes TileK16.xP TileK16.oP
  have := fun n => storable_ite (F := F) (A := TileK16.xtPiece d L fx n) (B := iprop(emp)) (TileK16.valid L n)
  have := fun n => storable_ite (F := F) (A := TileK16.oPiece (F := F) d L n) (B := iprop(emp)) (TileK16.valid L n)
  infer_instance
set_option synthInstance.maxHeartbeats 400000 in
instance td16_storable (d : Dev nD) (L : grid16.Coords) (fx) : BI.Storable (upEmb : UEmb _ 𝕄) (TileK16.tdRes (F := F) d L fx) := by
  unfold TileK16.tdRes TileK16.xP TileK16.oQ
  have := fun n => storable_ite (F := F) (A := TileK16.xtPiece d L fx n) (B := iprop(emp)) (TileK16.valid L n)
  have := fun n => storable_ite (F := F) (A := ((TileK16.outM L n).view.loc (TileK16.thr d L) ↦[(TileK16.outM L n).view.set]{fullShare} (Cert.Spec.row 16 fx) : sProp 𝕄)) (B := iprop(emp)) (TileK16.valid L n)
  infer_instance
set_option synthInstance.maxHeartbeats 400000 in
instance go17_storable (d : Dev nD) (L : grid17.Coords) (fx) : BI.Storable (upEmb : UEmb _ 𝕄) (TileK17.goRes (F := F) d L fx) := by
  unfold TileK17.goRes TileK17.xP TileK17.oP
  have := fun n => storable_ite (F := F) (A := TileK17.xtPiece d L fx n) (B := iprop(emp)) (TileK17.valid L n)
  have := fun n => storable_ite (F := F) (A := TileK17.oPiece (F := F) d L n) (B := iprop(emp)) (TileK17.valid L n)
  infer_instance
set_option synthInstance.maxHeartbeats 400000 in
instance td17_storable (d : Dev nD) (L : grid17.Coords) (fx) : BI.Storable (upEmb : UEmb _ 𝕄) (TileK17.tdRes (F := F) d L fx) := by
  unfold TileK17.tdRes TileK17.xP TileK17.oQ
  have := fun n => storable_ite (F := F) (A := TileK17.xtPiece d L fx n) (B := iprop(emp)) (TileK17.valid L n)
  have := fun n => storable_ite (F := F) (A := ((TileK17.outM L n).view.loc (TileK17.thr d L) ↦[(TileK17.outM L n).view.set]{fullShare} (Cert.Spec.row 17 fx) : sProp 𝕄)) (B := iprop(emp)) (TileK17.valid L n)
  infer_instance
set_option synthInstance.maxHeartbeats 400000 in
instance go18_storable (d : Dev nD) (L : grid18.Coords) (fx) : BI.Storable (upEmb : UEmb _ 𝕄) (TileK18.goRes (F := F) d L fx) := by
  unfold TileK18.goRes TileK18.xP TileK18.oP
  have := fun n => storable_ite (F := F) (A := TileK18.xtPiece d L fx n) (B := iprop(emp)) (TileK18.valid L n)
  have := fun n => storable_ite (F := F) (A := TileK18.oPiece (F := F) d L n) (B := iprop(emp)) (TileK18.valid L n)
  infer_instance
set_option synthInstance.maxHeartbeats 400000 in
instance td18_storable (d : Dev nD) (L : grid18.Coords) (fx) : BI.Storable (upEmb : UEmb _ 𝕄) (TileK18.tdRes (F := F) d L fx) := by
  unfold TileK18.tdRes TileK18.xP TileK18.oQ
  have := fun n => storable_ite (F := F) (A := TileK18.xtPiece d L fx n) (B := iprop(emp)) (TileK18.valid L n)
  have := fun n => storable_ite (F := F) (A := ((TileK18.outM L n).view.loc (TileK18.thr d L) ↦[(TileK18.outM L n).view.set]{fullShare} (Cert.Spec.row 18 fx) : sProp 𝕄)) (B := iprop(emp)) (TileK18.valid L n)
  infer_instance
set_option synthInstance.maxHeartbeats 400000 in
instance go19_storable (d : Dev nD) (L : grid19.Coords) (fx) : BI.Storable (upEmb : UEmb _ 𝕄) (TileK19.goRes (F := F) d L fx) := by
  unfold TileK19.goRes TileK19.xP TileK19.oP
  have := fun n => storable_ite (F := F) (A := TileK19.xtPiece d L fx n) (B := iprop(emp)) (TileK19.valid L n)
  have := fun n => storable_ite (F := F) (A := TileK19.oPiece (F := F) d L n) (B := iprop(emp)) (TileK19.valid L n)
  infer_instance
set_option synthInstance.maxHeartbeats 400000 in
instance td19_storable (d : Dev nD) (L : grid19.Coords) (fx) : BI.Storable (upEmb : UEmb _ 𝕄) (TileK19.tdRes (F := F) d L fx) := by
  unfold TileK19.tdRes TileK19.xP TileK19.oQ
  have := fun n => storable_ite (F := F) (A := TileK19.xtPiece d L fx n) (B := iprop(emp)) (TileK19.valid L n)
  have := fun n => storable_ite (F := F) (A := ((TileK19.outM L n).view.loc (TileK19.thr d L) ↦[(TileK19.outM L n).view.set]{fullShare} (Cert.Spec.row 19 fx) : sProp 𝕄)) (B := iprop(emp)) (TileK19.valid L n)
  infer_instance
set_option synthInstance.maxHeartbeats 400000 in
instance go20_storable (d : Dev nD) (L : grid20.Coords) (fx) : BI.Storable (upEmb : UEmb _ 𝕄) (TileK20.goRes (F := F) d L fx) := by
  unfold TileK20.goRes TileK20.xP TileK20.oP
  have := fun n => storable_ite (F := F) (A := TileK20.xtPiece d L fx n) (B := iprop(emp)) (TileK20.valid L n)
  have := fun n => storable_ite (F := F) (A := TileK20.oPiece (F := F) d L n) (B := iprop(emp)) (TileK20.valid L n)
  infer_instance
set_option synthInstance.maxHeartbeats 400000 in
instance td20_storable (d : Dev nD) (L : grid20.Coords) (fx) : BI.Storable (upEmb : UEmb _ 𝕄) (TileK20.tdRes (F := F) d L fx) := by
  unfold TileK20.tdRes TileK20.xP TileK20.oQ
  have := fun n => storable_ite (F := F) (A := TileK20.xtPiece d L fx n) (B := iprop(emp)) (TileK20.valid L n)
  have := fun n => storable_ite (F := F) (A := ((TileK20.outM L n).view.loc (TileK20.thr d L) ↦[(TileK20.outM L n).view.set]{fullShare} (Cert.Spec.row 20 fx) : sProp 𝕄)) (B := iprop(emp)) (TileK20.valid L n)
  infer_instance
set_option synthInstance.maxHeartbeats 400000 in
instance go21_storable (d : Dev nD) (L : grid21.Coords) (fx) : BI.Storable (upEmb : UEmb _ 𝕄) (TileK21.goRes (F := F) d L fx) := by
  unfold TileK21.goRes TileK21.xP TileK21.oP
  have := fun n => storable_ite (F := F) (A := TileK21.xtPiece d L fx n) (B := iprop(emp)) (TileK21.valid L n)
  have := fun n => storable_ite (F := F) (A := TileK21.oPiece (F := F) d L n) (B := iprop(emp)) (TileK21.valid L n)
  infer_instance
set_option synthInstance.maxHeartbeats 400000 in
instance td21_storable (d : Dev nD) (L : grid21.Coords) (fx) : BI.Storable (upEmb : UEmb _ 𝕄) (TileK21.tdRes (F := F) d L fx) := by
  unfold TileK21.tdRes TileK21.xP TileK21.oQ
  have := fun n => storable_ite (F := F) (A := TileK21.xtPiece d L fx n) (B := iprop(emp)) (TileK21.valid L n)
  have := fun n => storable_ite (F := F) (A := ((TileK21.outM L n).view.loc (TileK21.thr d L) ↦[(TileK21.outM L n).view.set]{fullShare} (Cert.Spec.row 21 fx) : sProp 𝕄)) (B := iprop(emp)) (TileK21.valid L n)
  infer_instance

instance goQ_storable (q : Fin 22) (d : Dev nD) (c : Fin 2) (s : Fin 16) : BI.Storable (upEmb : UEmb _ 𝕄) (goQ m q d c s) := by
  unfold goQ; split <;> first | infer_instance | (rename_i h; exact absurd h (Nat.not_lt.2 (Nat.le_add_left _ _)))
instance tdQ_storable (q : Fin 22) (d : Dev nD) (c : Fin 2) (s : Fin 16) : BI.Storable (upEmb : UEmb _ 𝕄) (tdQ m q d c s) := by
  unfold tdQ; split <;> first | infer_instance | (rename_i h; exact absurd h (Nat.not_lt.2 (Nat.le_add_left _ _)))

/-- The calls' payloads: a task its pieces, a SparseCore the pieces of its sixteen tasks; no kernel's proof consumes
    anything of the launch's. -/
def P : (K (F := F)).Pay (nD := nD) (Val := Elt F) (Name := ℕ) (U := UU) where
  st := fun q d c => bigSep Finset.univ fun i : Fin ((K (F := F)).nSub q) => goQ m q d (c.cast (nCore_eq q)) (i.cast (nSub_eq q))
  dn := fun q d c => bigSep Finset.univ fun i : Fin ((K (F := F)).nSub q) => tdQ m q d (c.cast (nCore_eq q)) (i.cast (nSub_eq q))
  go := fun q d c i => goQ m q d (c.cast (nCore_eq q)) (i.cast (nSub_eq q))
  td := fun q d c i => tdQ m q d (c.cast (nCore_eq q)) (i.cast (nSub_eq q))
  x := fun _ _ => iprop(emp)

instance P_storable : (P (F := F) m).IsStorable where
  st _ d c := by unfold P; infer_instance
  dn _ d c := by unfold P; infer_instance
  go _ _ _ _ := by unfold P; infer_instance
  td _ _ _ _ := by unfold P; infer_instance

/-- A SparseCore's share is its sixteen tasks' shares, going and coming back. -/
theorem vecSplit (q : Fin 22) : (K (F := F)).VecSplit' (P m) q := by
  intro d c
  show (bigSep Finset.univ fun i : Fin ((K (F := F)).nSub q) => (P m).go q d c i)
    ⊢ |={Set.univ}=> iprop((bigSep Finset.univ fun i : Fin ((K (F := F)).nSub q) => (P m).go q d c i)
      ∗ ((bigSep Finset.univ fun i : Fin ((K (F := F)).nSub q) => (P m).td q d c i)
          -∗ (bigSep Finset.univ fun i : Fin ((K (F := F)).nSub q) => (P m).td q d c i)))
  iintro H; imodintro
  isplitl [H]; · iexact H
  iintro H; iexact H

/-! ## The launch element: the handshakes' rounds; nothing of the kernels' own -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 22 => (P m).x q thr) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 22 => (iprop(emp) : sProp 𝕄)) = iprop(emp) from by
    rw [bigSep_congr fun _ _ => bigSep_emp' _, bigSep_emp']]
  iempintro

end Cert.Proof.LaunchKI

end
-- ==== Proof.LaunchObl.lean ====
/-
  The launch of the 22 copy kernels: each kernel's task obligation, from the proof of its body.
-/
import proofs.«206869_g37898791420194_cont_8to1_b_558_20_alg».proof.Proof.LaunchP

noncomputable section

namespace Cert.Proof.LaunchKI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic
open Cert.Proof.Pieces (crd)

variable {F : FTy → Type}

local notation "𝕄" => MT nD τ sig (HIx 22) (Elt F) ℕ UU ℕ

variable (m : (ℓ : Loc nD τ sig) → Buf (Elt F) ℓ) (ρ : Dev nD → PrngReg)

variable [FloatOps F]

/-! ## The kernels' task obligations, from the proofs of their bodies -/

/-- The 22 body proofs, one per kernel: a vector subcore's task of kernel q, from its pieces to its pieces with the
    result's holding row q. -/
structure TileBodies (F : FTy → Type) [FloatOps F] : Prop where
  b0 : ∀ (hF : (K (F := F)).Facts) (d : Dev nD) (L : grid0.Coords) (fx : Buf (Elt F) ((Memref.whole main_v0_scv : Memref sig .scVector .hbm S22x1600000 .f32).view.loc (TileK0.thr d L)))
      (O : CellTallies nD τ sig (HIx 22)) (W : Waits sig (HIx 22)) (hO : ∀ g, O g none = 0),
      iprop(levAts (K (F := F)).L (K (F := F)).lev ∗ emp ∗ TileK0.goRes d L fx ∗ scopedBufs (TileK0.thr d L) ∗ scopedSems0 (TileK0.thr d L) ∗ owes (TileK0.thr d L) O W)
        ⊢ wp frame (wpE (defs₀ (F := F)) 𝒱₀ (TileK0.thr d L) none) Set.univ
            (cc0_sc_group L (Memref.whole main_v0_scv) (Memref.isWhole_whole _) (Memref.whole main_v1_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7)
            fun _ => iprop(TileK0.tdRes d L fx ∗ scopedBufs (TileK0.thr d L) ∗ scopedSems0 (TileK0.thr d L) ∗ ∃ W', ⌜∀ p ∈ W', p ∈ W ∨ p.2 = none⌝ ∗ owes (TileK0.thr d L) O W')
  b1 : ∀ (hF : (K (F := F)).Facts) (d : Dev nD) (L : grid1.Coords) (fx : Buf (Elt F) ((Memref.whole main_v0_scv : Memref sig .scVector .hbm S22x1600000 .f32).view.loc (TileK1.thr d L)))
      (O : CellTallies nD τ sig (HIx 22)) (W : Waits sig (HIx 22)) (hO : ∀ g, O g none = 0),
      iprop(levAts (K (F := F)).L (K (F := F)).lev ∗ emp ∗ TileK1.goRes d L fx ∗ scopedBufs (TileK1.thr d L) ∗ scopedSems0 (TileK1.thr d L) ∗ owes (TileK1.thr d L) O W)
        ⊢ wp frame (wpE (defs₀ (F := F)) 𝒱₀ (TileK1.thr d L) none) Set.univ
            (cc1_sc_group L (Memref.whole main_v0_scv) (Memref.isWhole_whole _) (Memref.whole main_v2_scv) (Memref.isWhole_whole _) (Memref.whole cc1_scratch0) (Memref.isWhole_whole _) (Memref.whole cc1_scratch1) (Memref.isWhole_whole _) (Memref.whole cc1_scratch2) (Memref.isWhole_whole _) (Memref.whole cc1_scratch3) (Memref.isWhole_whole _) cc1_scratch4 cc1_scratch5 cc1_scratch6 cc1_scratch7)
            fun _ => iprop(TileK1.tdRes d L fx ∗ scopedBufs (TileK1.thr d L) ∗ scopedSems0 (TileK1.thr d L) ∗ ∃ W', ⌜∀ p ∈ W', p ∈ W ∨ p.2 = none⌝ ∗ owes (TileK1.thr d L) O W')
  b2 : ∀ (hF : (K (F := F)).Facts) (d : Dev nD) (L : grid2.Coords) (fx : Buf (Elt F) ((Memref.whole main_v0_scv : Memref sig .scVector .hbm S22x1600000 .f32).view.loc (TileK2.thr d L)))
      (O : CellTallies nD τ sig (HIx 22)) (W : Waits sig (HIx 22)) (hO : ∀ g, O g none = 0),
      iprop(levAts (K (F := F)).L (K (F := F)).lev ∗ emp ∗ TileK2.goRes d L fx ∗ scopedBufs (TileK2.thr d L) ∗ scopedSems0 (TileK2.thr d L) ∗ owes (TileK2.thr d L) O W)
        ⊢ wp frame (wpE (defs₀ (F := F)) 𝒱₀ (TileK2.thr d L) none) Set.univ
            (cc2_sc_group L (Memref.whole main_v0_scv) (Memref.isWhole_whole _) (Memref.whole main_v3_scv) (Memref.isWhole_whole _) (Memref.whole cc2_scratch0) (Memref.isWhole_whole _) (Memref.whole cc2_scratch1) (Memref.isWhole_whole _) (Memref.whole cc2_scratch2) (Memref.isWhole_whole _) (Memref.whole cc2_scratch3) (Memref.isWhole_whole _) cc2_scratch4 cc2_scratch5 cc2_scratch6 cc2_scratch7)
            fun _ => iprop(TileK2.tdRes d L fx ∗ scopedBufs (TileK2.thr d L) ∗ scopedSems0 (TileK2.thr d L) ∗ ∃ W', ⌜∀ p ∈ W', p ∈ W ∨ p.2 = none⌝ ∗ owes (TileK2.thr d L) O W')
  b3 : ∀ (hF : (K (F := F)).Facts) (d : Dev nD) (L : grid3.Coords) (fx : Buf (Elt F) ((Memref.whole main_v0_scv : Memref sig .scVector .hbm S22x1600000 .f32).view.loc (TileK3.thr d L)))
      (O : CellTallies nD τ sig (HIx 22)) (W : Waits sig (HIx 22)) (hO : ∀ g, O g none = 0),
      iprop(levAts (K (F := F)).L (K (F := F)).lev ∗ emp ∗ TileK3.goRes d L fx ∗ scopedBufs (TileK3.thr d L) ∗ scopedSems0 (TileK3.thr d L) ∗ owes (TileK3.thr d L) O W)
        ⊢ wp frame (wpE (defs₀ (F := F)) 𝒱₀ (TileK3.thr d L) none) Set.univ
            (cc3_sc_group L (Memref.whole main_v0_scv) (Memref.isWhole_whole _) (Memref.whole main_v4_scv) (Memref.isWhole_whole _) (Memref.whole cc3_scratch0) (Memref.isWhole_whole _) (Memref.whole cc3_scratch1) (Memref.isWhole_whole _) (Memref.whole cc3_scratch2) (Memref.isWhole_whole _) (Memref.whole cc3_scratch3) (Memref.isWhole_whole _) cc3_scratch4 cc3_scratch5 cc3_scratch6 cc3_scratch7)
            fun _ => iprop(TileK3.tdRes d L fx ∗ scopedBufs (TileK3.thr d L) ∗ scopedSems0 (TileK3.thr d L) ∗ ∃ W', ⌜∀ p ∈ W', p ∈ W ∨ p.2 = none⌝ ∗ owes (TileK3.thr d L) O W')
  b4 : ∀ (hF : (K (F := F)).Facts) (d : Dev nD) (L : grid4.Coords) (fx : Buf (Elt F) ((Memref.whole main_v0_scv : Memref sig .scVector .hbm S22x1600000 .f32).view.loc (TileK4.thr d L)))
      (O : CellTallies nD τ sig (HIx 22)) (W : Waits sig (HIx 22)) (hO : ∀ g, O g none = 0),
      iprop(levAts (K (F := F)).L (K (F := F)).lev ∗ emp ∗ TileK4.goRes d L fx ∗ scopedBufs (TileK4.thr d L) ∗ scopedSems0 (TileK4.thr d L) ∗ owes (TileK4.thr d L) O W)
        ⊢ wp frame (wpE (defs₀ (F := F)) 𝒱₀ (TileK4.thr d L) none) Set.univ
            (cc4_sc_group L (Memref.whole main_v0_scv) (Memref.isWhole_whole _) (Memref.whole main_v5_scv) (Memref.isWhole_whole _) (Memref.whole cc4_scratch0) (Memref.isWhole_whole _) (Memref.whole cc4_scratch1) (Memref.isWhole_whole _) (Memref.whole cc4_scratch2) (Memref.isWhole_whole _) (Memref.whole cc4_scratch3) (Memref.isWhole_whole _) cc4_scratch4 cc4_scratch5 cc4_scratch6 cc4_scratch7)
            fun _ => iprop(TileK4.tdRes d L fx ∗ scopedBufs (TileK4.thr d L) ∗ scopedSems0 (TileK4.thr d L) ∗ ∃ W', ⌜∀ p ∈ W', p ∈ W ∨ p.2 = none⌝ ∗ owes (TileK4.thr d L) O W')
  b5 : ∀ (hF : (K (F := F)).Facts) (d : Dev nD) (L : grid5.Coords) (fx : Buf (Elt F) ((Memref.whole main_v0_scv : Memref sig .scVector .hbm S22x1600000 .f32).view.loc (TileK5.thr d L)))
      (O : CellTallies nD τ sig (HIx 22)) (W : Waits sig (HIx 22)) (hO : ∀ g, O g none = 0),
      iprop(levAts (K (F := F)).L (K (F := F)).lev ∗ emp ∗ TileK5.goRes d L fx ∗ scopedBufs (TileK5.thr d L) ∗ scopedSems0 (TileK5.thr d L) ∗ owes (TileK5.thr d L) O W)
        ⊢ wp frame (wpE (defs₀ (F := F)) 𝒱₀ (TileK5.thr d L) none) Set.univ
            (cc5_sc_group L (Memref.whole main_v0_scv) (Memref.isWhole_whole _) (Memref.whole main_v6_scv) (Memref.isWhole_whole _) (Memref.whole cc5_scratch0) (Memref.isWhole_whole _) (Memref.whole cc5_scratch1) (Memref.isWhole_whole _) (Memref.whole cc5_scratch2) (Memref.isWhole_whole _) (Memref.whole cc5_scratch3) (Memref.isWhole_whole _) cc5_scratch4 cc5_scratch5 cc5_scratch6 cc5_scratch7)
            fun _ => iprop(TileK5.tdRes d L fx ∗ scopedBufs (TileK5.thr d L) ∗ scopedSems0 (TileK5.thr d L) ∗ ∃ W', ⌜∀ p ∈ W', p ∈ W ∨ p.2 = none⌝ ∗ owes (TileK5.thr d L) O W')
  b6 : ∀ (hF : (K (F := F)).Facts) (d : Dev nD) (L : grid6.Coords) (fx : Buf (Elt F) ((Memref.whole main_v0_scv : Memref sig .scVector .hbm S22x1600000 .f32).view.loc (TileK6.thr d L)))
      (O : CellTallies nD τ sig (HIx 22)) (W : Waits sig (HIx 22)) (hO : ∀ g, O g none = 0),
      iprop(levAts (K (F := F)).L (K (F := F)).lev ∗ emp ∗ TileK6.goRes d L fx ∗ scopedBufs (TileK6.thr d L) ∗ scopedSems0 (TileK6.thr d L) ∗ owes (TileK6.thr d L) O W)
        ⊢ wp frame (wpE (defs₀ (F := F)) 𝒱₀ (TileK6.thr d L) none) Set.univ
            (cc6_sc_group L (Memref.whole main_v0_scv) (Memref.isWhole_whole _) (Memref.whole main_v7_scv) (Memref.isWhole_whole _) (Memref.whole cc6_scratch0) (Memref.isWhole_whole _) (Memref.whole cc6_scratch1) (Memref.isWhole_whole _) (Memref.whole cc6_scratch2) (Memref.isWhole_whole _) (Memref.whole cc6_scratch3) (Memref.isWhole_whole _) cc6_scratch4 cc6_scratch5 cc6_scratch6 cc6_scratch7)
            fun _ => iprop(TileK6.tdRes d L fx ∗ scopedBufs (TileK6.thr d L) ∗ scopedSems0 (TileK6.thr d L) ∗ ∃ W', ⌜∀ p ∈ W', p ∈ W ∨ p.2 = none⌝ ∗ owes (TileK6.thr d L) O W')
  b7 : ∀ (hF : (K (F := F)).Facts) (d : Dev nD) (L : grid7.Coords) (fx : Buf (Elt F) ((Memref.whole main_v0_scv : Memref sig .scVector .hbm S22x1600000 .f32).view.loc (TileK7.thr d L)))
      (O : CellTallies nD τ sig (HIx 22)) (W : Waits sig (HIx 22)) (hO : ∀ g, O g none = 0),
      iprop(levAts (K (F := F)).L (K (F := F)).lev ∗ emp ∗ TileK7.goRes d L fx ∗ scopedBufs (TileK7.thr d L) ∗ scopedSems0 (TileK7.thr d L) ∗ owes (TileK7.thr d L) O W)
        ⊢ wp frame (wpE (defs₀ (F := F)) 𝒱₀ (TileK7.thr d L) none) Set.univ
            (cc7_sc_group L (Memref.whole main_v0_scv) (Memref.isWhole_whole _) (Memref.whole main_v8_scv) (Memref.isWhole_whole _) (Memref.whole cc7_scratch0) (Memref.isWhole_whole _) (Memref.whole cc7_scratch1) (Memref.isWhole_whole _) (Memref.whole cc7_scratch2) (Memref.isWhole_whole _) (Memref.whole cc7_scratch3) (Memref.isWhole_whole _) cc7_scratch4 cc7_scratch5 cc7_scratch6 cc7_scratch7)
            fun _ => iprop(TileK7.tdRes d L fx ∗ scopedBufs (TileK7.thr d L) ∗ scopedSems0 (TileK7.thr d L) ∗ ∃ W', ⌜∀ p ∈ W', p ∈ W ∨ p.2 = none⌝ ∗ owes (TileK7.thr d L) O W')
  b8 : ∀ (hF : (K (F := F)).Facts) (d : Dev nD) (L : grid8.Coords) (fx : Buf (Elt F) ((Memref.whole main_v0_scv : Memref sig .scVector .hbm S22x1600000 .f32).view.loc (TileK8.thr d L)))
      (O : CellTallies nD τ sig (HIx 22)) (W : Waits sig (HIx 22)) (hO : ∀ g, O g none = 0),
      iprop(levAts (K (F := F)).L (K (F := F)).lev ∗ emp ∗ TileK8.goRes d L fx ∗ scopedBufs (TileK8.thr d L) ∗ scopedSems0 (TileK8.thr d L) ∗ owes (TileK8.thr d L) O W)
        ⊢ wp frame (wpE (defs₀ (F := F)) 𝒱₀ (TileK8.thr d L) none) Set.univ
            (cc8_sc_group L (Memref.whole main_v0_scv) (Memref.isWhole_whole _) (Memref.whole main_v9_scv) (Memref.isWhole_whole _) (Memref.whole cc8_scratch0) (Memref.isWhole_whole _) (Memref.whole cc8_scratch1) (Memref.isWhole_whole _) (Memref.whole cc8_scratch2) (Memref.isWhole_whole _) (Memref.whole cc8_scratch3) (Memref.isWhole_whole _) cc8_scratch4 cc8_scratch5 cc8_scratch6 cc8_scratch7)
            fun _ => iprop(TileK8.tdRes d L fx ∗ scopedBufs (TileK8.thr d L) ∗ scopedSems0 (TileK8.thr d L) ∗ ∃ W', ⌜∀ p ∈ W', p ∈ W ∨ p.2 = none⌝ ∗ owes (TileK8.thr d L) O W')
  b9 : ∀ (hF : (K (F := F)).Facts) (d : Dev nD) (L : grid9.Coords) (fx : Buf (Elt F) ((Memref.whole main_v0_scv : Memref sig .scVector .hbm S22x1600000 .f32).view.loc (TileK9.thr d L)))
      (O : CellTallies nD τ sig (HIx 22)) (W : Waits sig (HIx 22)) (hO : ∀ g, O g none = 0),
      iprop(levAts (K (F := F)).L (K (F := F)).lev ∗ emp ∗ TileK9.goRes d L fx ∗ scopedBufs (TileK9.thr d L) ∗ scopedSems0 (TileK9.thr d L) ∗ owes (TileK9.thr d L) O W)
        ⊢ wp frame (wpE (defs₀ (F := F)) 𝒱₀ (TileK9.thr d L) none) Set.univ
            (cc9_sc_group L (Memref.whole main_v0_scv) (Memref.isWhole_whole _) (Memref.whole main_v10_scv) (Memref.isWhole_whole _) (Memref.whole cc9_scratch0) (Memref.isWhole_whole _) (Memref.whole cc9_scratch1) (Memref.isWhole_whole _) (Memref.whole cc9_scratch2) (Memref.isWhole_whole _) (Memref.whole cc9_scratch3) (Memref.isWhole_whole _) cc9_scratch4 cc9_scratch5 cc9_scratch6 cc9_scratch7)
            fun _ => iprop(TileK9.tdRes d L fx ∗ scopedBufs (TileK9.thr d L) ∗ scopedSems0 (TileK9.thr d L) ∗ ∃ W', ⌜∀ p ∈ W', p ∈ W ∨ p.2 = none⌝ ∗ owes (TileK9.thr d L) O W')
  b10 : ∀ (hF : (K (F := F)).Facts) (d : Dev nD) (L : grid10.Coords) (fx : Buf (Elt F) ((Memref.whole main_v0_scv : Memref sig .scVector .hbm S22x1600000 .f32).view.loc (TileK10.thr d L)))
      (O : CellTallies nD τ sig (HIx 22)) (W : Waits sig (HIx 22)) (hO : ∀ g, O g none = 0),
      iprop(levAts (K (F := F)).L (K (F := F)).lev ∗ emp ∗ TileK10.goRes d L fx ∗ scopedBufs (TileK10.thr d L) ∗ scopedSems0 (TileK10.thr d L) ∗ owes (TileK10.thr d L) O W)
        ⊢ wp frame (wpE (defs₀ (F := F)) 𝒱₀ (TileK10.thr d L) none) Set.univ
            (cc10_sc_group L (Memref.whole main_v0_scv) (Memref.isWhole_whole _) (Memref.whole main_v11_scv) (Memref.isWhole_whole _) (Memref.whole cc10_scratch0) (Memref.isWhole_whole _) (Memref.whole cc10_scratch1) (Memref.isWhole_whole _) (Memref.whole cc10_scratch2) (Memref.isWhole_whole _) (Memref.whole cc10_scratch3) (Memref.isWhole_whole _) cc10_scratch4 cc10_scratch5 cc10_scratch6 cc10_scratch7)
            fun _ => iprop(TileK10.tdRes d L fx ∗ scopedBufs (TileK10.thr d L) ∗ scopedSems0 (TileK10.thr d L) ∗ ∃ W', ⌜∀ p ∈ W', p ∈ W ∨ p.2 = none⌝ ∗ owes (TileK10.thr d L) O W')
  b11 : ∀ (hF : (K (F := F)).Facts) (d : Dev nD) (L : grid11.Coords) (fx : Buf (Elt F) ((Memref.whole main_v0_scv : Memref sig .scVector .hbm S22x1600000 .f32).view.loc (TileK11.thr d L)))
      (O : CellTallies nD τ sig (HIx 22)) (W : Waits sig (HIx 22)) (hO : ∀ g, O g none = 0),
      iprop(levAts (K (F := F)).L (K (F := F)).lev ∗ emp ∗ TileK11.goRes d L fx ∗ scopedBufs (TileK11.thr d L) ∗ scopedSems0 (TileK11.thr d L) ∗ owes (TileK11.thr d L) O W)
        ⊢ wp frame (wpE (defs₀ (F := F)) 𝒱₀ (TileK11.thr d L) none) Set.univ
            (cc11_sc_group L (Memref.whole main_v0_scv) (Memref.isWhole_whole _) (Memref.whole main_v12_scv) (Memref.isWhole_whole _) (Memref.whole cc11_scratch0) (Memref.isWhole_whole _) (Memref.whole cc11_scratch1) (Memref.isWhole_whole _) (Memref.whole cc11_scratch2) (Memref.isWhole_whole _) (Memref.whole cc11_scratch3) (Memref.isWhole_whole _) cc11_scratch4 cc11_scratch5 cc11_scratch6 cc11_scratch7)
            fun _ => iprop(TileK11.tdRes d L fx ∗ scopedBufs (TileK11.thr d L) ∗ scopedSems0 (TileK11.thr d L) ∗ ∃ W', ⌜∀ p ∈ W', p ∈ W ∨ p.2 = none⌝ ∗ owes (TileK11.thr d L) O W')
  b12 : ∀ (hF : (K (F := F)).Facts) (d : Dev nD) (L : grid12.Coords) (fx : Buf (Elt F) ((Memref.whole main_v0_scv : Memref sig .scVector .hbm S22x1600000 .f32).view.loc (TileK12.thr d L)))
      (O : CellTallies nD τ sig (HIx 22)) (W : Waits sig (HIx 22)) (hO : ∀ g, O g none = 0),
      iprop(levAts (K (F := F)).L (K (F := F)).lev ∗ emp ∗ TileK12.goRes d L fx ∗ scopedBufs (TileK12.thr d L) ∗ scopedSems0 (TileK12.thr d L) ∗ owes (TileK12.thr d L) O W)
        ⊢ wp frame (wpE (defs₀ (F := F)) 𝒱₀ (TileK12.thr d L) none) Set.univ
            (cc12_sc_group L (Memref.whole main_v0_scv) (Memref.isWhole_whole _) (Memref.whole main_v13_scv) (Memref.isWhole_whole _) (Memref.whole cc12_scratch0) (Memref.isWhole_whole _) (Memref.whole cc12_scratch1) (Memref.isWhole_whole _) (Memref.whole cc12_scratch2) (Memref.isWhole_whole _) (Memref.whole cc12_scratch3) (Memref.isWhole_whole _) cc12_scratch4 cc12_scratch5 cc12_scratch6 cc12_scratch7)
            fun _ => iprop(TileK12.tdRes d L fx ∗ scopedBufs (TileK12.thr d L) ∗ scopedSems0 (TileK12.thr d L) ∗ ∃ W', ⌜∀ p ∈ W', p ∈ W ∨ p.2 = none⌝ ∗ owes (TileK12.thr d L) O W')
  b13 : ∀ (hF : (K (F := F)).Facts) (d : Dev nD) (L : grid13.Coords) (fx : Buf (Elt F) ((Memref.whole main_v0_scv : Memref sig .scVector .hbm S22x1600000 .f32).view.loc (TileK13.thr d L)))
      (O : CellTallies nD τ sig (HIx 22)) (W : Waits sig (HIx 22)) (hO : ∀ g, O g none = 0),
      iprop(levAts (K (F := F)).L (K (F := F)).lev ∗ emp ∗ TileK13.goRes d L fx ∗ scopedBufs (TileK13.thr d L) ∗ scopedSems0 (TileK13.thr d L) ∗ owes (TileK13.thr d L) O W)
        ⊢ wp frame (wpE (defs₀ (F := F)) 𝒱₀ (TileK13.thr d L) none) Set.univ
            (cc13_sc_group L (Memref.whole main_v0_scv) (Memref.isWhole_whole _) (Memref.whole main_v14_scv) (Memref.isWhole_whole _) (Memref.whole cc13_scratch0) (Memref.isWhole_whole _) (Memref.whole cc13_scratch1) (Memref.isWhole_whole _) (Memref.whole cc13_scratch2) (Memref.isWhole_whole _) (Memref.whole cc13_scratch3) (Memref.isWhole_whole _) cc13_scratch4 cc13_scratch5 cc13_scratch6 cc13_scratch7)
            fun _ => iprop(TileK13.tdRes d L fx ∗ scopedBufs (TileK13.thr d L) ∗ scopedSems0 (TileK13.thr d L) ∗ ∃ W', ⌜∀ p ∈ W', p ∈ W ∨ p.2 = none⌝ ∗ owes (TileK13.thr d L) O W')
  b14 : ∀ (hF : (K (F := F)).Facts) (d : Dev nD) (L : grid14.Coords) (fx : Buf (Elt F) ((Memref.whole main_v0_scv : Memref sig .scVector .hbm S22x1600000 .f32).view.loc (TileK14.thr d L)))
      (O : CellTallies nD τ sig (HIx 22)) (W : Waits sig (HIx 22)) (hO : ∀ g, O g none = 0),
      iprop(levAts (K (F := F)).L (K (F := F)).lev ∗ emp ∗ TileK14.goRes d L fx ∗ scopedBufs (TileK14.thr d L) ∗ scopedSems0 (TileK14.thr d L) ∗ owes (TileK14.thr d L) O W)
        ⊢ wp frame (wpE (defs₀ (F := F)) 𝒱₀ (TileK14.thr d L) none) Set.univ
            (cc14_sc_group L (Memref.whole main_v0_scv) (Memref.isWhole_whole _) (Memref.whole main_v15_scv) (Memref.isWhole_whole _) (Memref.whole cc14_scratch0) (Memref.isWhole_whole _) (Memref.whole cc14_scratch1) (Memref.isWhole_whole _) (Memref.whole cc14_scratch2) (Memref.isWhole_whole _) (Memref.whole cc14_scratch3) (Memref.isWhole_whole _) cc14_scratch4 cc14_scratch5 cc14_scratch6 cc14_scratch7)
            fun _ => iprop(TileK14.tdRes d L fx ∗ scopedBufs (TileK14.thr d L) ∗ scopedSems0 (TileK14.thr d L) ∗ ∃ W', ⌜∀ p ∈ W', p ∈ W ∨ p.2 = none⌝ ∗ owes (TileK14.thr d L) O W')
  b15 : ∀ (hF : (K (F := F)).Facts) (d : Dev nD) (L : grid15.Coords) (fx : Buf (Elt F) ((Memref.whole main_v0_scv : Memref sig .scVector .hbm S22x1600000 .f32).view.loc (TileK15.thr d L)))
      (O : CellTallies nD τ sig (HIx 22)) (W : Waits sig (HIx 22)) (hO : ∀ g, O g none = 0),
      iprop(levAts (K (F := F)).L (K (F := F)).lev ∗ emp ∗ TileK15.goRes d L fx ∗ scopedBufs (TileK15.thr d L) ∗ scopedSems0 (TileK15.thr d L) ∗ owes (TileK15.thr d L) O W)
        ⊢ wp frame (wpE (defs₀ (F := F)) 𝒱₀ (TileK15.thr d L) none) Set.univ
            (cc15_sc_group L (Memref.whole main_v0_scv) (Memref.isWhole_whole _) (Memref.whole main_v16_scv) (Memref.isWhole_whole _) (Memref.whole cc15_scratch0) (Memref.isWhole_whole _) (Memref.whole cc15_scratch1) (Memref.isWhole_whole _) (Memref.whole cc15_scratch2) (Memref.isWhole_whole _) (Memref.whole cc15_scratch3) (Memref.isWhole_whole _) cc15_scratch4 cc15_scratch5 cc15_scratch6 cc15_scratch7)
            fun _ => iprop(TileK15.tdRes d L fx ∗ scopedBufs (TileK15.thr d L) ∗ scopedSems0 (TileK15.thr d L) ∗ ∃ W', ⌜∀ p ∈ W', p ∈ W ∨ p.2 = none⌝ ∗ owes (TileK15.thr d L) O W')
  b16 : ∀ (hF : (K (F := F)).Facts) (d : Dev nD) (L : grid16.Coords) (fx : Buf (Elt F) ((Memref.whole main_v0_scv : Memref sig .scVector .hbm S22x1600000 .f32).view.loc (TileK16.thr d L)))
      (O : CellTallies nD τ sig (HIx 22)) (W : Waits sig (HIx 22)) (hO : ∀ g, O g none = 0),
      iprop(levAts (K (F := F)).L (K (F := F)).lev ∗ emp ∗ TileK16.goRes d L fx ∗ scopedBufs (TileK16.thr d L) ∗ scopedSems0 (TileK16.thr d L) ∗ owes (TileK16.thr d L) O W)
        ⊢ wp frame (wpE (defs₀ (F := F)) 𝒱₀ (TileK16.thr d L) none) Set.univ
            (cc16_sc_group L (Memref.whole main_v0_scv) (Memref.isWhole_whole _) (Memref.whole main_v17_scv) (Memref.isWhole_whole _) (Memref.whole cc16_scratch0) (Memref.isWhole_whole _) (Memref.whole cc16_scratch1) (Memref.isWhole_whole _) (Memref.whole cc16_scratch2) (Memref.isWhole_whole _) (Memref.whole cc16_scratch3) (Memref.isWhole_whole _) cc16_scratch4 cc16_scratch5 cc16_scratch6 cc16_scratch7)
            fun _ => iprop(TileK16.tdRes d L fx ∗ scopedBufs (TileK16.thr d L) ∗ scopedSems0 (TileK16.thr d L) ∗ ∃ W', ⌜∀ p ∈ W', p ∈ W ∨ p.2 = none⌝ ∗ owes (TileK16.thr d L) O W')
  b17 : ∀ (hF : (K (F := F)).Facts) (d : Dev nD) (L : grid17.Coords) (fx : Buf (Elt F) ((Memref.whole main_v0_scv : Memref sig .scVector .hbm S22x1600000 .f32).view.loc (TileK17.thr d L)))
      (O : CellTallies nD τ sig (HIx 22)) (W : Waits sig (HIx 22)) (hO : ∀ g, O g none = 0),
      iprop(levAts (K (F := F)).L (K (F := F)).lev ∗ emp ∗ TileK17.goRes d L fx ∗ scopedBufs (TileK17.thr d L) ∗ scopedSems0 (TileK17.thr d L) ∗ owes (TileK17.thr d L) O W)
        ⊢ wp frame (wpE (defs₀ (F := F)) 𝒱₀ (TileK17.thr d L) none) Set.univ
            (cc17_sc_group L (Memref.whole main_v0_scv) (Memref.isWhole_whole _) (Memref.whole main_v18_scv) (Memref.isWhole_whole _) (Memref.whole cc17_scratch0) (Memref.isWhole_whole _) (Memref.whole cc17_scratch1) (Memref.isWhole_whole _) (Memref.whole cc17_scratch2) (Memref.isWhole_whole _) (Memref.whole cc17_scratch3) (Memref.isWhole_whole _) cc17_scratch4 cc17_scratch5 cc17_scratch6 cc17_scratch7)
            fun _ => iprop(TileK17.tdRes d L fx ∗ scopedBufs (TileK17.thr d L) ∗ scopedSems0 (TileK17.thr d L) ∗ ∃ W', ⌜∀ p ∈ W', p ∈ W ∨ p.2 = none⌝ ∗ owes (TileK17.thr d L) O W')
  b18 : ∀ (hF : (K (F := F)).Facts) (d : Dev nD) (L : grid18.Coords) (fx : Buf (Elt F) ((Memref.whole main_v0_scv : Memref sig .scVector .hbm S22x1600000 .f32).view.loc (TileK18.thr d L)))
      (O : CellTallies nD τ sig (HIx 22)) (W : Waits sig (HIx 22)) (hO : ∀ g, O g none = 0),
      iprop(levAts (K (F := F)).L (K (F := F)).lev ∗ emp ∗ TileK18.goRes d L fx ∗ scopedBufs (TileK18.thr d L) ∗ scopedSems0 (TileK18.thr d L) ∗ owes (TileK18.thr d L) O W)
        ⊢ wp frame (wpE (defs₀ (F := F)) 𝒱₀ (TileK18.thr d L) none) Set.univ
            (cc18_sc_group L (Memref.whole main_v0_scv) (Memref.isWhole_whole _) (Memref.whole main_v19_scv) (Memref.isWhole_whole _) (Memref.whole cc18_scratch0) (Memref.isWhole_whole _) (Memref.whole cc18_scratch1) (Memref.isWhole_whole _) (Memref.whole cc18_scratch2) (Memref.isWhole_whole _) (Memref.whole cc18_scratch3) (Memref.isWhole_whole _) cc18_scratch4 cc18_scratch5 cc18_scratch6 cc18_scratch7)
            fun _ => iprop(TileK18.tdRes d L fx ∗ scopedBufs (TileK18.thr d L) ∗ scopedSems0 (TileK18.thr d L) ∗ ∃ W', ⌜∀ p ∈ W', p ∈ W ∨ p.2 = none⌝ ∗ owes (TileK18.thr d L) O W')
  b19 : ∀ (hF : (K (F := F)).Facts) (d : Dev nD) (L : grid19.Coords) (fx : Buf (Elt F) ((Memref.whole main_v0_scv : Memref sig .scVector .hbm S22x1600000 .f32).view.loc (TileK19.thr d L)))
      (O : CellTallies nD τ sig (HIx 22)) (W : Waits sig (HIx 22)) (hO : ∀ g, O g none = 0),
      iprop(levAts (K (F := F)).L (K (F := F)).lev ∗ emp ∗ TileK19.goRes d L fx ∗ scopedBufs (TileK19.thr d L) ∗ scopedSems0 (TileK19.thr d L) ∗ owes (TileK19.thr d L) O W)
        ⊢ wp frame (wpE (defs₀ (F := F)) 𝒱₀ (TileK19.thr d L) none) Set.univ
            (cc19_sc_group L (Memref.whole main_v0_scv) (Memref.isWhole_whole _) (Memref.whole main_v20_scv) (Memref.isWhole_whole _) (Memref.whole cc19_scratch0) (Memref.isWhole_whole _) (Memref.whole cc19_scratch1) (Memref.isWhole_whole _) (Memref.whole cc19_scratch2) (Memref.isWhole_whole _) (Memref.whole cc19_scratch3) (Memref.isWhole_whole _) cc19_scratch4 cc19_scratch5 cc19_scratch6 cc19_scratch7)
            fun _ => iprop(TileK19.tdRes d L fx ∗ scopedBufs (TileK19.thr d L) ∗ scopedSems0 (TileK19.thr d L) ∗ ∃ W', ⌜∀ p ∈ W', p ∈ W ∨ p.2 = none⌝ ∗ owes (TileK19.thr d L) O W')
  b20 : ∀ (hF : (K (F := F)).Facts) (d : Dev nD) (L : grid20.Coords) (fx : Buf (Elt F) ((Memref.whole main_v0_scv : Memref sig .scVector .hbm S22x1600000 .f32).view.loc (TileK20.thr d L)))
      (O : CellTallies nD τ sig (HIx 22)) (W : Waits sig (HIx 22)) (hO : ∀ g, O g none = 0),
      iprop(levAts (K (F := F)).L (K (F := F)).lev ∗ emp ∗ TileK20.goRes d L fx ∗ scopedBufs (TileK20.thr d L) ∗ scopedSems0 (TileK20.thr d L) ∗ owes (TileK20.thr d L) O W)
        ⊢ wp frame (wpE (defs₀ (F := F)) 𝒱₀ (TileK20.thr d L) none) Set.univ
            (cc20_sc_group L (Memref.whole main_v0_scv) (Memref.isWhole_whole _) (Memref.whole main_v21_scv) (Memref.isWhole_whole _) (Memref.whole cc20_scratch0) (Memref.isWhole_whole _) (Memref.whole cc20_scratch1) (Memref.isWhole_whole _) (Memref.whole cc20_scratch2) (Memref.isWhole_whole _) (Memref.whole cc20_scratch3) (Memref.isWhole_whole _) cc20_scratch4 cc20_scratch5 cc20_scratch6 cc20_scratch7)
            fun _ => iprop(TileK20.tdRes d L fx ∗ scopedBufs (TileK20.thr d L) ∗ scopedSems0 (TileK20.thr d L) ∗ ∃ W', ⌜∀ p ∈ W', p ∈ W ∨ p.2 = none⌝ ∗ owes (TileK20.thr d L) O W')
  b21 : ∀ (hF : (K (F := F)).Facts) (d : Dev nD) (L : grid21.Coords) (fx : Buf (Elt F) ((Memref.whole main_v0_scv : Memref sig .scVector .hbm S22x1600000 .f32).view.loc (TileK21.thr d L)))
      (O : CellTallies nD τ sig (HIx 22)) (W : Waits sig (HIx 22)) (hO : ∀ g, O g none = 0),
      iprop(levAts (K (F := F)).L (K (F := F)).lev ∗ emp ∗ TileK21.goRes d L fx ∗ scopedBufs (TileK21.thr d L) ∗ scopedSems0 (TileK21.thr d L) ∗ owes (TileK21.thr d L) O W)
        ⊢ wp frame (wpE (defs₀ (F := F)) 𝒱₀ (TileK21.thr d L) none) Set.univ
            (cc21_sc_group L (Memref.whole main_v0_scv) (Memref.isWhole_whole _) (Memref.whole main_v22_scv) (Memref.isWhole_whole _) (Memref.whole cc21_scratch0) (Memref.isWhole_whole _) (Memref.whole cc21_scratch1) (Memref.isWhole_whole _) (Memref.whole cc21_scratch2) (Memref.isWhole_whole _) (Memref.whole cc21_scratch3) (Memref.isWhole_whole _) cc21_scratch4 cc21_scratch5 cc21_scratch6 cc21_scratch7)
            fun _ => iprop(TileK21.tdRes d L fx ∗ scopedBufs (TileK21.thr d L) ∗ scopedSems0 (TileK21.thr d L) ∗ ∃ W', ⌜∀ p ∈ W', p ∈ W ∨ p.2 = none⌝ ∗ owes (TileK21.thr d L) O W')

omit [FloatOps F] in
theorem obl_post {thr : Thread nD τ} {A B C : sProp 𝕄} {O : CellTallies nD τ sig (HIx 22)} {W : Waits sig (HIx 22)} {q : Fin 22} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem defs₀_vector0 (c : Fin τ.nSC) (s : Fin τ.nSub) :
    defs₀ (F := F) (.scVector c s) 0 ()
      = SparseCore.onTile hcore0 hsub0 (fun c s => cc0_sc_group (fun | 0 => c | 1 => s | ⟨_ + 2, h⟩ => absurd h (Nat.not_lt.2 (Nat.le_add_left _ _))) (Memref.whole main_v0_scv) (Memref.isWhole_whole _) (Memref.whole main_v1_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7) ⟨⟩ c s := rfl

theorem tileObl0 (hF : (K (F := F)).Facts) (hb : TileBodies F) : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector0]; simp only [SparseCore.onTile, hc, and_self, ↓reduceDIte]
  exact (hb.b0 hF d (crd ⟨_, hc.1⟩ ⟨_, hc.2⟩) (xt m d) O W hO).trans (wp_mono frame _ _ fun _ => obl_post)

theorem defs₀_vector1 (c : Fin τ.nSC) (s : Fin τ.nSub) :
    defs₀ (F := F) (.scVector c s) 1 ()
      = SparseCore.onTile hcore1 hsub1 (fun c s => cc1_sc_group (fun | 0 => c | 1 => s | ⟨_ + 2, h⟩ => absurd h (Nat.not_lt.2 (Nat.le_add_left _ _))) (Memref.whole main_v0_scv) (Memref.isWhole_whole _) (Memref.whole main_v2_scv) (Memref.isWhole_whole _) (Memref.whole cc1_scratch0) (Memref.isWhole_whole _) (Memref.whole cc1_scratch1) (Memref.isWhole_whole _) (Memref.whole cc1_scratch2) (Memref.isWhole_whole _) (Memref.whole cc1_scratch3) (Memref.isWhole_whole _) cc1_scratch4 cc1_scratch5 cc1_scratch6 cc1_scratch7) ⟨⟩ c s := rfl

theorem tileObl1 (hF : (K (F := F)).Facts) (hb : TileBodies F) : (K (F := F)).TileObl (D (F := F)) 𝒱 (P m) v₀ 1 := by
  intro d c i O W hO _ _
  simp only [show (P m).ox = fun _ _ => 0 from rfl, add_zero]
  change _ ⊢ wp _ _ _ (Pipeline.liftProg (defs₀ (F := F) (.scVector ((K (F := F)).core 1 c) ((K (F := F)).sub 1 i)) 1 ())) _
  refine BI.Entails.trans ?_ (Pipeline.wp_liftProg (D (F := F)) (Pipeline.defs_kernel pcfgs defs₀) 𝒱₀ _ Set.univ none _ _)
  have hc : ((K (F := F)).core 1 c).val < grid1.bound 0 ∧ ((K (F := F)).sub 1 i).val < grid1.bound 1 := ⟨c.isLt, i.isLt⟩
  rw [defs₀_vector1]; simp only [SparseCore.onTile, hc, and_self, ↓reduceDIte]
  exact (hb.b1 hF d (crd ⟨_, hc.1⟩ ⟨_, hc.2⟩) (xt m d) O W hO).trans (wp_mono frame _ _ fun _ => obl_post)

theorem defs₀_vector2 (c : Fin τ.nSC) (s : Fin τ.nSub) :
    defs₀ (F := F) (.scVector c s) 2 ()
      = SparseCore.onTile hcore2 hsub2 (fun c s => cc2_sc_group (fun | 0 => c | 1 => s | ⟨_ + 2, h⟩ => absurd h (Nat.not_lt.2 (Nat.le_add_left _ _))) (Memref.whole main_v0_scv) (Memref.isWhole_whole _) (Memref.whole main_v3_scv) (Memref.isWhole_whole _) (Memref.whole cc2_scratch0) (Memref.isWhole_whole _) (Memref.whole cc2_scratch1) (Memref.isWhole_whole _) (Memref.whole cc2_scratch2) (Memref.isWhole_whole _) (Memref.whole cc2_scratch3) (Memref.isWhole_whole _) cc2_scratch4 cc2_scratch5 cc2_scratch6 cc2_scratch7) ⟨⟩ c s := rfl

theorem tileObl2 (hF : (K (F := F)).Facts) (hb : TileBodies F) : (K (F := F)).TileObl (D (F := F)) 𝒱 (P m) v₀ 2 := by
  intro d c i O W hO _ _
  simp only [show (P m).ox = fun _ _ => 0 from rfl, add_zero]
  change _ ⊢ wp _ _ _ (Pipeline.liftProg (defs₀ (F := F) (.scVector ((K (F := F)).core 2 c) ((K (F := F)).sub 2 i)) 2 ())) _
  refine BI.Entails.trans ?_ (Pipeline.wp_liftProg (D (F := F)) (Pipeline.defs_kernel pcfgs defs₀) 𝒱₀ _ Set.univ none _ _)
  have hc : ((K (F := F)).core 2 c).val < grid2.bound 0 ∧ ((K (F := F)).sub 2 i).val < grid2.bound 1 := ⟨c.isLt, i.isLt⟩
  rw [defs₀_vector2]; simp only [SparseCore.onTile, hc, and_self, ↓reduceDIte]
  exact (hb.b2 hF d (crd ⟨_, hc.1⟩ ⟨_, hc.2⟩) (xt m d) O W hO).trans (wp_mono frame _ _ fun _ => obl_post)

theorem defs₀_vector3 (c : Fin τ.nSC) (s : Fin τ.nSub) :
    defs₀ (F := F) (.scVector c s) 3 ()
      = SparseCore.onTile hcore3 hsub3 (fun c s => cc3_sc_group (fun | 0 => c | 1 => s | ⟨_ + 2, h⟩ => absurd h (Nat.not_lt.2 (Nat.le_add_left _ _))) (Memref.whole main_v0_scv) (Memref.isWhole_whole _) (Memref.whole main_v4_scv) (Memref.isWhole_whole _) (Memref.whole cc3_scratch0) (Memref.isWhole_whole _) (Memref.whole cc3_scratch1) (Memref.isWhole_whole _) (Memref.whole cc3_scratch2) (Memref.isWhole_whole _) (Memref.whole cc3_scratch3) (Memref.isWhole_whole _) cc3_scratch4 cc3_scratch5 cc3_scratch6 cc3_scratch7) ⟨⟩ c s := rfl

theorem tileObl3 (hF : (K (F := F)).Facts) (hb : TileBodies F) : (K (F := F)).TileObl (D (F := F)) 𝒱 (P m) v₀ 3 := by
  intro d c i O W hO _ _
  simp only [show (P m).ox = fun _ _ => 0 from rfl, add_zero]
  change _ ⊢ wp _ _ _ (Pipeline.liftProg (defs₀ (F := F) (.scVector ((K (F := F)).core 3 c) ((K (F := F)).sub 3 i)) 3 ())) _
  refine BI.Entails.trans ?_ (Pipeline.wp_liftProg (D (F := F)) (Pipeline.defs_kernel pcfgs defs₀) 𝒱₀ _ Set.univ none _ _)
  have hc : ((K (F := F)).core 3 c).val < grid3.bound 0 ∧ ((K (F := F)).sub 3 i).val < grid3.bound 1 := ⟨c.isLt, i.isLt⟩
  rw [defs₀_vector3]; simp only [SparseCore.onTile, hc, and_self, ↓reduceDIte]
  exact (hb.b3 hF d (crd ⟨_, hc.1⟩ ⟨_, hc.2⟩) (xt m d) O W hO).trans (wp_mono frame _ _ fun _ => obl_post)

theorem defs₀_vector4 (c : Fin τ.nSC) (s : Fin τ.nSub) :
    defs₀ (F := F) (.scVector c s) 4 ()
      = SparseCore.onTile hcore4 hsub4 (fun c s => cc4_sc_group (fun | 0 => c | 1 => s | ⟨_ + 2, h⟩ => absurd h (Nat.not_lt.2 (Nat.le_add_left _ _))) (Memref.whole main_v0_scv) (Memref.isWhole_whole _) (Memref.whole main_v5_scv) (Memref.isWhole_whole _) (Memref.whole cc4_scratch0) (Memref.isWhole_whole _) (Memref.whole cc4_scratch1) (Memref.isWhole_whole _) (Memref.whole cc4_scratch2) (Memref.isWhole_whole _) (Memref.whole cc4_scratch3) (Memref.isWhole_whole _) cc4_scratch4 cc4_scratch5 cc4_scratch6 cc4_scratch7) ⟨⟩ c s := rfl

theorem tileObl4 (hF : (K (F := F)).Facts) (hb : TileBodies F) : (K (F := F)).TileObl (D (F := F)) 𝒱 (P m) v₀ 4 := by
  intro d c i O W hO _ _
  simp only [show (P m).ox = fun _ _ => 0 from rfl, add_zero]
  change _ ⊢ wp _ _ _ (Pipeline.liftProg (defs₀ (F := F) (.scVector ((K (F := F)).core 4 c) ((K (F := F)).sub 4 i)) 4 ())) _
  refine BI.Entails.trans ?_ (Pipeline.wp_liftProg (D (F := F)) (Pipeline.defs_kernel pcfgs defs₀) 𝒱₀ _ Set.univ none _ _)
  have hc : ((K (F := F)).core 4 c).val < grid4.bound 0 ∧ ((K (F := F)).sub 4 i).val < grid4.bound 1 := ⟨c.isLt, i.isLt⟩
  rw [defs₀_vector4]; simp only [SparseCore.onTile, hc, and_self, ↓reduceDIte]
  exact (hb.b4 hF d (crd ⟨_, hc.1⟩ ⟨_, hc.2⟩) (xt m d) O W hO).trans (wp_mono frame _ _ fun _ => obl_post)

theorem defs₀_vector5 (c : Fin τ.nSC) (s : Fin τ.nSub) :
    defs₀ (F := F) (.scVector c s) 5 ()
      = SparseCore.onTile hcore5 hsub5 (fun c s => cc5_sc_group (fun | 0 => c | 1 => s | ⟨_ + 2, h⟩ => absurd h (Nat.not_lt.2 (Nat.le_add_left _ _))) (Memref.whole main_v0_scv) (Memref.isWhole_whole _) (Memref.whole main_v6_scv) (Memref.isWhole_whole _) (Memref.whole cc5_scratch0) (Memref.isWhole_whole _) (Memref.whole cc5_scratch1) (Memref.isWhole_whole _) (Memref.whole cc5_scratch2) (Memref.isWhole_whole _) (Memref.whole cc5_scratch3) (Memref.isWhole_whole _) cc5_scratch4 cc5_scratch5 cc5_scratch6 cc5_scratch7) ⟨⟩ c s := rfl

theorem tileObl5 (hF : (K (F := F)).Facts) (hb : TileBodies F) : (K (F := F)).TileObl (D (F := F)) 𝒱 (P m) v₀ 5 := by
  intro d c i O W hO _ _
  simp only [show (P m).ox = fun _ _ => 0 from rfl, add_zero]
  change _ ⊢ wp _ _ _ (Pipeline.liftProg (defs₀ (F := F) (.scVector ((K (F := F)).core 5 c) ((K (F := F)).sub 5 i)) 5 ())) _
  refine BI.Entails.trans ?_ (Pipeline.wp_liftProg (D (F := F)) (Pipeline.defs_kernel pcfgs defs₀) 𝒱₀ _ Set.univ none _ _)
  have hc : ((K (F := F)).core 5 c).val < grid5.bound 0 ∧ ((K (F := F)).sub 5 i).val < grid5.bound 1 := ⟨c.isLt, i.isLt⟩
  rw [defs₀_vector5]; simp only [SparseCore.onTile, hc, and_self, ↓reduceDIte]
  exact (hb.b5 hF d (crd ⟨_, hc.1⟩ ⟨_, hc.2⟩) (xt m d) O W hO).trans (wp_mono frame _ _ fun _ => obl_post)

theorem defs₀_vector6 (c : Fin τ.nSC) (s : Fin τ.nSub) :
    defs₀ (F := F) (.scVector c s) 6 ()
      = SparseCore.onTile hcore6 hsub6 (fun c s => cc6_sc_group (fun | 0 => c | 1 => s | ⟨_ + 2, h⟩ => absurd h (Nat.not_lt.2 (Nat.le_add_left _ _))) (Memref.whole main_v0_scv) (Memref.isWhole_whole _) (Memref.whole main_v7_scv) (Memref.isWhole_whole _) (Memref.whole cc6_scratch0) (Memref.isWhole_whole _) (Memref.whole cc6_scratch1) (Memref.isWhole_whole _) (Memref.whole cc6_scratch2) (Memref.isWhole_whole _) (Memref.whole cc6_scratch3) (Memref.isWhole_whole _) cc6_scratch4 cc6_scratch5 cc6_scratch6 cc6_scratch7) ⟨⟩ c s := rfl

theorem tileObl6 (hF : (K (F := F)).Facts) (hb : TileBodies F) : (K (F := F)).TileObl (D (F := F)) 𝒱 (P m) v₀ 6 := by
  intro d c i O W hO _ _
  simp only [show (P m).ox = fun _ _ => 0 from rfl, add_zero]
  change _ ⊢ wp _ _ _ (Pipeline.liftProg (defs₀ (F := F) (.scVector ((K (F := F)).core 6 c) ((K (F := F)).sub 6 i)) 6 ())) _
  refine BI.Entails.trans ?_ (Pipeline.wp_liftProg (D (F := F)) (Pipeline.defs_kernel pcfgs defs₀) 𝒱₀ _ Set.univ none _ _)
  have hc : ((K (F := F)).core 6 c).val < grid6.bound 0 ∧ ((K (F := F)).sub 6 i).val < grid6.bound 1 := ⟨c.isLt, i.isLt⟩
  rw [defs₀_vector6]; simp only [SparseCore.onTile, hc, and_self, ↓reduceDIte]
  exact (hb.b6 hF d (crd ⟨_, hc.1⟩ ⟨_, hc.2⟩) (xt m d) O W hO).trans (wp_mono frame _ _ fun _ => obl_post)

theorem defs₀_vector7 (c : Fin τ.nSC) (s : Fin τ.nSub) :
    defs₀ (F := F) (.scVector c s) 7 ()
      = SparseCore.onTile hcore7 hsub7 (fun c s => cc7_sc_group (fun | 0 => c | 1 => s | ⟨_ + 2, h⟩ => absurd h (Nat.not_lt.2 (Nat.le_add_left _ _))) (Memref.whole main_v0_scv) (Memref.isWhole_whole _) (Memref.whole main_v8_scv) (Memref.isWhole_whole _) (Memref.whole cc7_scratch0) (Memref.isWhole_whole _) (Memref.whole cc7_scratch1) (Memref.isWhole_whole _) (Memref.whole cc7_scratch2) (Memref.isWhole_whole _) (Memref.whole cc7_scratch3) (Memref.isWhole_whole _) cc7_scratch4 cc7_scratch5 cc7_scratch6 cc7_scratch7) ⟨⟩ c s := rfl

theorem tileObl7 (hF : (K (F := F)).Facts) (hb : TileBodies F) : (K (F := F)).TileObl (D (F := F)) 𝒱 (P m) v₀ 7 := by
  intro d c i O W hO _ _
  simp only [show (P m).ox = fun _ _ => 0 from rfl, add_zero]
  change _ ⊢ wp _ _ _ (Pipeline.liftProg (defs₀ (F := F) (.scVector ((K (F := F)).core 7 c) ((K (F := F)).sub 7 i)) 7 ())) _
  refine BI.Entails.trans ?_ (Pipeline.wp_liftProg (D (F := F)) (Pipeline.defs_kernel pcfgs defs₀) 𝒱₀ _ Set.univ none _ _)
  have hc : ((K (F := F)).core 7 c).val < grid7.bound 0 ∧ ((K (F := F)).sub 7 i).val < grid7.bound 1 := ⟨c.isLt, i.isLt⟩
  rw [defs₀_vector7]; simp only [SparseCore.onTile, hc, and_self, ↓reduceDIte]
  exact (hb.b7 hF d (crd ⟨_, hc.1⟩ ⟨_, hc.2⟩) (xt m d) O W hO).trans (wp_mono frame _ _ fun _ => obl_post)

theorem defs₀_vector8 (c : Fin τ.nSC) (s : Fin τ.nSub) :
    defs₀ (F := F) (.scVector c s) 8 ()
      = SparseCore.onTile hcore8 hsub8 (fun c s => cc8_sc_group (fun | 0 => c | 1 => s | ⟨_ + 2, h⟩ => absurd h (Nat.not_lt.2 (Nat.le_add_left _ _))) (Memref.whole main_v0_scv) (Memref.isWhole_whole _) (Memref.whole main_v9_scv) (Memref.isWhole_whole _) (Memref.whole cc8_scratch0) (Memref.isWhole_whole _) (Memref.whole cc8_scratch1) (Memref.isWhole_whole _) (Memref.whole cc8_scratch2) (Memref.isWhole_whole _) (Memref.whole cc8_scratch3) (Memref.isWhole_whole _) cc8_scratch4 cc8_scratch5 cc8_scratch6 cc8_scratch7) ⟨⟩ c s := rfl

theorem tileObl8 (hF : (K (F := F)).Facts) (hb : TileBodies F) : (K (F := F)).TileObl (D (F := F)) 𝒱 (P m) v₀ 8 := by
  intro d c i O W hO _ _
  simp only [show (P m).ox = fun _ _ => 0 from rfl, add_zero]
  change _ ⊢ wp _ _ _ (Pipeline.liftProg (defs₀ (F := F) (.scVector ((K (F := F)).core 8 c) ((K (F := F)).sub 8 i)) 8 ())) _
  refine BI.Entails.trans ?_ (Pipeline.wp_liftProg (D (F := F)) (Pipeline.defs_kernel pcfgs defs₀) 𝒱₀ _ Set.univ none _ _)
  have hc : ((K (F := F)).core 8 c).val < grid8.bound 0 ∧ ((K (F := F)).sub 8 i).val < grid8.bound 1 := ⟨c.isLt, i.isLt⟩
  rw [defs₀_vector8]; simp only [SparseCore.onTile, hc, and_self, ↓reduceDIte]
  exact (hb.b8 hF d (crd ⟨_, hc.1⟩ ⟨_, hc.2⟩) (xt m d) O W hO).trans (wp_mono frame _ _ fun _ => obl_post)

theorem defs₀_vector9 (c : Fin τ.nSC) (s : Fin τ.nSub) :
    defs₀ (F := F) (.scVector c s) 9 ()
      = SparseCore.onTile hcore9 hsub9 (fun c s => cc9_sc_group (fun | 0 => c | 1 => s | ⟨_ + 2, h⟩ => absurd h (Nat.not_lt.2 (Nat.le_add_left _ _))) (Memref.whole main_v0_scv) (Memref.isWhole_whole _) (Memref.whole main_v10_scv) (Memref.isWhole_whole _) (Memref.whole cc9_scratch0) (Memref.isWhole_whole _) (Memref.whole cc9_scratch1) (Memref.isWhole_whole _) (Memref.whole cc9_scratch2) (Memref.isWhole_whole _) (Memref.whole cc9_scratch3) (Memref.isWhole_whole _) cc9_scratch4 cc9_scratch5 cc9_scratch6 cc9_scratch7) ⟨⟩ c s := rfl

theorem tileObl9 (hF : (K (F := F)).Facts) (hb : TileBodies F) : (K (F := F)).TileObl (D (F := F)) 𝒱 (P m) v₀ 9 := by
  intro d c i O W hO _ _
  simp only [show (P m).ox = fun _ _ => 0 from rfl, add_zero]
  change _ ⊢ wp _ _ _ (Pipeline.liftProg (defs₀ (F := F) (.scVector ((K (F := F)).core 9 c) ((K (F := F)).sub 9 i)) 9 ())) _
  refine BI.Entails.trans ?_ (Pipeline.wp_liftProg (D (F := F)) (Pipeline.defs_kernel pcfgs defs₀) 𝒱₀ _ Set.univ none _ _)
  have hc : ((K (F := F)).core 9 c).val < grid9.bound 0 ∧ ((K (F := F)).sub 9 i).val < grid9.bound 1 := ⟨c.isLt, i.isLt⟩
  rw [defs₀_vector9]; simp only [SparseCore.onTile, hc, and_self, ↓reduceDIte]
  exact (hb.b9 hF d (crd ⟨_, hc.1⟩ ⟨_, hc.2⟩) (xt m d) O W hO).trans (wp_mono frame _ _ fun _ => obl_post)

theorem defs₀_vector10 (c : Fin τ.nSC) (s : Fin τ.nSub) :
    defs₀ (F := F) (.scVector c s) 10 ()
      = SparseCore.onTile hcore10 hsub10 (fun c s => cc10_sc_group (fun | 0 => c | 1 => s | ⟨_ + 2, h⟩ => absurd h (Nat.not_lt.2 (Nat.le_add_left _ _))) (Memref.whole main_v0_scv) (Memref.isWhole_whole _) (Memref.whole main_v11_scv) (Memref.isWhole_whole _) (Memref.whole cc10_scratch0) (Memref.isWhole_whole _) (Memref.whole cc10_scratch1) (Memref.isWhole_whole _) (Memref.whole cc10_scratch2) (Memref.isWhole_whole _) (Memref.whole cc10_scratch3) (Memref.isWhole_whole _) cc10_scratch4 cc10_scratch5 cc10_scratch6 cc10_scratch7) ⟨⟩ c s := rfl

theorem tileObl10 (hF : (K (F := F)).Facts) (hb : TileBodies F) : (K (F := F)).TileObl (D (F := F)) 𝒱 (P m) v₀ 10 := by
  intro d c i O W hO _ _
  simp only [show (P m).ox = fun _ _ => 0 from rfl, add_zero]
  change _ ⊢ wp _ _ _ (Pipeline.liftProg (defs₀ (F := F) (.scVector ((K (F := F)).core 10 c) ((K (F := F)).sub 10 i)) 10 ())) _
  refine BI.Entails.trans ?_ (Pipeline.wp_liftProg (D (F := F)) (Pipeline.defs_kernel pcfgs defs₀) 𝒱₀ _ Set.univ none _ _)
  have hc : ((K (F := F)).core 10 c).val < grid10.bound 0 ∧ ((K (F := F)).sub 10 i).val < grid10.bound 1 := ⟨c.isLt, i.isLt⟩
  rw [defs₀_vector10]; simp only [SparseCore.onTile, hc, and_self, ↓reduceDIte]
  exact (hb.b10 hF d (crd ⟨_, hc.1⟩ ⟨_, hc.2⟩) (xt m d) O W hO).trans (wp_mono frame _ _ fun _ => obl_post)

theorem defs₀_vector11 (c : Fin τ.nSC) (s : Fin τ.nSub) :
    defs₀ (F := F) (.scVector c s) 11 ()
      = SparseCore.onTile hcore11 hsub11 (fun c s => cc11_sc_group (fun | 0 => c | 1 => s | ⟨_ + 2, h⟩ => absurd h (Nat.not_lt.2 (Nat.le_add_left _ _))) (Memref.whole main_v0_scv) (Memref.isWhole_whole _) (Memref.whole main_v12_scv) (Memref.isWhole_whole _) (Memref.whole cc11_scratch0) (Memref.isWhole_whole _) (Memref.whole cc11_scratch1) (Memref.isWhole_whole _) (Memref.whole cc11_scratch2) (Memref.isWhole_whole _) (Memref.whole cc11_scratch3) (Memref.isWhole_whole _) cc11_scratch4 cc11_scratch5 cc11_scratch6 cc11_scratch7) ⟨⟩ c s := rfl

theorem tileObl11 (hF : (K (F := F)).Facts) (hb : TileBodies F) : (K (F := F)).TileObl (D (F := F)) 𝒱 (P m) v₀ 11 := by
  intro d c i O W hO _ _
  simp only [show (P m).ox = fun _ _ => 0 from rfl, add_zero]
  change _ ⊢ wp _ _ _ (Pipeline.liftProg (defs₀ (F := F) (.scVector ((K (F := F)).core 11 c) ((K (F := F)).sub 11 i)) 11 ())) _
  refine BI.Entails.trans ?_ (Pipeline.wp_liftProg (D (F := F)) (Pipeline.defs_kernel pcfgs defs₀) 𝒱₀ _ Set.univ none _ _)
  have hc : ((K (F := F)).core 11 c).val < grid11.bound 0 ∧ ((K (F := F)).sub 11 i).val < grid11.bound 1 := ⟨c.isLt, i.isLt⟩
  rw [defs₀_vector11]; simp only [SparseCore.onTile, hc, and_self, ↓reduceDIte]
  exact (hb.b11 hF d (crd ⟨_, hc.1⟩ ⟨_, hc.2⟩) (xt m d) O W hO).trans (wp_mono frame _ _ fun _ => obl_post)

theorem defs₀_vector12 (c : Fin τ.nSC) (s : Fin τ.nSub) :
    defs₀ (F := F) (.scVector c s) 12 ()
      = SparseCore.onTile hcore12 hsub12 (fun c s => cc12_sc_group (fun | 0 => c | 1 => s | ⟨_ + 2, h⟩ => absurd h (Nat.not_lt.2 (Nat.le_add_left _ _))) (Memref.whole main_v0_scv) (Memref.isWhole_whole _) (Memref.whole main_v13_scv) (Memref.isWhole_whole _) (Memref.whole cc12_scratch0) (Memref.isWhole_whole _) (Memref.whole cc12_scratch1) (Memref.isWhole_whole _) (Memref.whole cc12_scratch2) (Memref.isWhole_whole _) (Memref.whole cc12_scratch3) (Memref.isWhole_whole _) cc12_scratch4 cc12_scratch5 cc12_scratch6 cc12_scratch7) ⟨⟩ c s := rfl

theorem tileObl12 (hF : (K (F := F)).Facts) (hb : TileBodies F) : (K (F := F)).TileObl (D (F := F)) 𝒱 (P m) v₀ 12 := by
  intro d c i O W hO _ _
  simp only [show (P m).ox = fun _ _ => 0 from rfl, add_zero]
  change _ ⊢ wp _ _ _ (Pipeline.liftProg (defs₀ (F := F) (.scVector ((K (F := F)).core 12 c) ((K (F := F)).sub 12 i)) 12 ())) _
  refine BI.Entails.trans ?_ (Pipeline.wp_liftProg (D (F := F)) (Pipeline.defs_kernel pcfgs defs₀) 𝒱₀ _ Set.univ none _ _)
  have hc : ((K (F := F)).core 12 c).val < grid12.bound 0 ∧ ((K (F := F)).sub 12 i).val < grid12.bound 1 := ⟨c.isLt, i.isLt⟩
  rw [defs₀_vector12]; simp only [SparseCore.onTile, hc, and_self, ↓reduceDIte]
  exact (hb.b12 hF d (crd ⟨_, hc.1⟩ ⟨_, hc.2⟩) (xt m d) O W hO).trans (wp_mono frame _ _ fun _ => obl_post)

theorem defs₀_vector13 (c : Fin τ.nSC) (s : Fin τ.nSub) :
    defs₀ (F := F) (.scVector c s) 13 ()
      = SparseCore.onTile hcore13 hsub13 (fun c s => cc13_sc_group (fun | 0 => c | 1 => s | ⟨_ + 2, h⟩ => absurd h (Nat.not_lt.2 (Nat.le_add_left _ _))) (Memref.whole main_v0_scv) (Memref.isWhole_whole _) (Memref.whole main_v14_scv) (Memref.isWhole_whole _) (Memref.whole cc13_scratch0) (Memref.isWhole_whole _) (Memref.whole cc13_scratch1) (Memref.isWhole_whole _) (Memref.whole cc13_scratch2) (Memref.isWhole_whole _) (Memref.whole cc13_scratch3) (Memref.isWhole_whole _) cc13_scratch4 cc13_scratch5 cc13_scratch6 cc13_scratch7) ⟨⟩ c s := rfl

theorem tileObl13 (hF : (K (F := F)).Facts) (hb : TileBodies F) : (K (F := F)).TileObl (D (F := F)) 𝒱 (P m) v₀ 13 := by
  intro d c i O W hO _ _
  simp only [show (P m).ox = fun _ _ => 0 from rfl, add_zero]
  change _ ⊢ wp _ _ _ (Pipeline.liftProg (defs₀ (F := F) (.scVector ((K (F := F)).core 13 c) ((K (F := F)).sub 13 i)) 13 ())) _
  refine BI.Entails.trans ?_ (Pipeline.wp_liftProg (D (F := F)) (Pipeline.defs_kernel pcfgs defs₀) 𝒱₀ _ Set.univ none _ _)
  have hc : ((K (F := F)).core 13 c).val < grid13.bound 0 ∧ ((K (F := F)).sub 13 i).val < grid13.bound 1 := ⟨c.isLt, i.isLt⟩
  rw [defs₀_vector13]; simp only [SparseCore.onTile, hc, and_self, ↓reduceDIte]
  exact (hb.b13 hF d (crd ⟨_, hc.1⟩ ⟨_, hc.2⟩) (xt m d) O W hO).trans (wp_mono frame _ _ fun _ => obl_post)

theorem defs₀_vector14 (c : Fin τ.nSC) (s : Fin τ.nSub) :
    defs₀ (F := F) (.scVector c s) 14 ()
      = SparseCore.onTile hcore14 hsub14 (fun c s => cc14_sc_group (fun | 0 => c | 1 => s | ⟨_ + 2, h⟩ => absurd h (Nat.not_lt.2 (Nat.le_add_left _ _))) (Memref.whole main_v0_scv) (Memref.isWhole_whole _) (Memref.whole main_v15_scv) (Memref.isWhole_whole _) (Memref.whole cc14_scratch0) (Memref.isWhole_whole _) (Memref.whole cc14_scratch1) (Memref.isWhole_whole _) (Memref.whole cc14_scratch2) (Memref.isWhole_whole _) (Memref.whole cc14_scratch3) (Memref.isWhole_whole _) cc14_scratch4 cc14_scratch5 cc14_scratch6 cc14_scratch7) ⟨⟩ c s := rfl

theorem tileObl14 (hF : (K (F := F)).Facts) (hb : TileBodies F) : (K (F := F)).TileObl (D (F := F)) 𝒱 (P m) v₀ 14 := by
  intro d c i O W hO _ _
  simp only [show (P m).ox = fun _ _ => 0 from rfl, add_zero]
  change _ ⊢ wp _ _ _ (Pipeline.liftProg (defs₀ (F := F) (.scVector ((K (F := F)).core 14 c) ((K (F := F)).sub 14 i)) 14 ())) _
  refine BI.Entails.trans ?_ (Pipeline.wp_liftProg (D (F := F)) (Pipeline.defs_kernel pcfgs defs₀) 𝒱₀ _ Set.univ none _ _)
  have hc : ((K (F := F)).core 14 c).val < grid14.bound 0 ∧ ((K (F := F)).sub 14 i).val < grid14.bound 1 := ⟨c.isLt, i.isLt⟩
  rw [defs₀_vector14]; simp only [SparseCore.onTile, hc, and_self, ↓reduceDIte]
  exact (hb.b14 hF d (crd ⟨_, hc.1⟩ ⟨_, hc.2⟩) (xt m d) O W hO).trans (wp_mono frame _ _ fun _ => obl_post)

theorem defs₀_vector15 (c : Fin τ.nSC) (s : Fin τ.nSub) :
    defs₀ (F := F) (.scVector c s) 15 ()
      = SparseCore.onTile hcore15 hsub15 (fun c s => cc15_sc_group (fun | 0 => c | 1 => s | ⟨_ + 2, h⟩ => absurd h (Nat.not_lt.2 (Nat.le_add_left _ _))) (Memref.whole main_v0_scv) (Memref.isWhole_whole _) (Memref.whole main_v16_scv) (Memref.isWhole_whole _) (Memref.whole cc15_scratch0) (Memref.isWhole_whole _) (Memref.whole cc15_scratch1) (Memref.isWhole_whole _) (Memref.whole cc15_scratch2) (Memref.isWhole_whole _) (Memref.whole cc15_scratch3) (Memref.isWhole_whole _) cc15_scratch4 cc15_scratch5 cc15_scratch6 cc15_scratch7) ⟨⟩ c s := rfl

theorem tileObl15 (hF : (K (F := F)).Facts) (hb : TileBodies F) : (K (F := F)).TileObl (D (F := F)) 𝒱 (P m) v₀ 15 := by
  intro d c i O W hO _ _
  simp only [show (P m).ox = fun _ _ => 0 from rfl, add_zero]
  change _ ⊢ wp _ _ _ (Pipeline.liftProg (defs₀ (F := F) (.scVector ((K (F := F)).core 15 c) ((K (F := F)).sub 15 i)) 15 ())) _
  refine BI.Entails.trans ?_ (Pipeline.wp_liftProg (D (F := F)) (Pipeline.defs_kernel pcfgs defs₀) 𝒱₀ _ Set.univ none _ _)
  have hc : ((K (F := F)).core 15 c).val < grid15.bound 0 ∧ ((K (F := F)).sub 15 i).val < grid15.bound 1 := ⟨c.isLt, i.isLt⟩
  rw [defs₀_vector15]; simp only [SparseCore.onTile, hc, and_self, ↓reduceDIte]
  exact (hb.b15 hF d (crd ⟨_, hc.1⟩ ⟨_, hc.2⟩) (xt m d) O W hO).trans (wp_mono frame _ _ fun _ => obl_post)

theorem defs₀_vector16 (c : Fin τ.nSC) (s : Fin τ.nSub) :
    defs₀ (F := F) (.scVector c s) 16 ()
      = SparseCore.onTile hcore16 hsub16 (fun c s => cc16_sc_group (fun | 0 => c | 1 => s | ⟨_ + 2, h⟩ => absurd h (Nat.not_lt.2 (Nat.le_add_left _ _))) (Memref.whole main_v0_scv) (Memref.isWhole_whole _) (Memref.whole main_v17_scv) (Memref.isWhole_whole _) (Memref.whole cc16_scratch0) (Memref.isWhole_whole _) (Memref.whole cc16_scratch1) (Memref.isWhole_whole _) (Memref.whole cc16_scratch2) (Memref.isWhole_whole _) (Memref.whole cc16_scratch3) (Memref.isWhole_whole _) cc16_scratch4 cc16_scratch5 cc16_scratch6 cc16_scratch7) ⟨⟩ c s := rfl

theorem tileObl16 (hF : (K (F := F)).Facts) (hb : TileBodies F) : (K (F := F)).TileObl (D (F := F)) 𝒱 (P m) v₀ 16 := by
  intro d c i O W hO _ _
  simp only [show (P m).ox = fun _ _ => 0 from rfl, add_zero]
  change _ ⊢ wp _ _ _ (Pipeline.liftProg (defs₀ (F := F) (.scVector ((K (F := F)).core 16 c) ((K (F := F)).sub 16 i)) 16 ())) _
  refine BI.Entails.trans ?_ (Pipeline.wp_liftProg (D (F := F)) (Pipeline.defs_kernel pcfgs defs₀) 𝒱₀ _ Set.univ none _ _)
  have hc : ((K (F := F)).core 16 c).val < grid16.bound 0 ∧ ((K (F := F)).sub 16 i).val < grid16.bound 1 := ⟨c.isLt, i.isLt⟩
  rw [defs₀_vector16]; simp only [SparseCore.onTile, hc, and_self, ↓reduceDIte]
  exact (hb.b16 hF d (crd ⟨_, hc.1⟩ ⟨_, hc.2⟩) (xt m d) O W hO).trans (wp_mono frame _ _ fun _ => obl_post)

theorem defs₀_vector17 (c : Fin τ.nSC) (s : Fin τ.nSub) :
    defs₀ (F := F) (.scVector c s) 17 ()
      = SparseCore.onTile hcore17 hsub17 (fun c s => cc17_sc_group (fun | 0 => c | 1 => s | ⟨_ + 2, h⟩ => absurd h (Nat.not_lt.2 (Nat.le_add_left _ _))) (Memref.whole main_v0_scv) (Memref.isWhole_whole _) (Memref.whole main_v18_scv) (Memref.isWhole_whole _) (Memref.whole cc17_scratch0) (Memref.isWhole_whole _) (Memref.whole cc17_scratch1) (Memref.isWhole_whole _) (Memref.whole cc17_scratch2) (Memref.isWhole_whole _) (Memref.whole cc17_scratch3) (Memref.isWhole_whole _) cc17_scratch4 cc17_scratch5 cc17_scratch6 cc17_scratch7) ⟨⟩ c s := rfl

theorem tileObl17 (hF : (K (F := F)).Facts) (hb : TileBodies F) : (K (F := F)).TileObl (D (F := F)) 𝒱 (P m) v₀ 17 := by
  intro d c i O W hO _ _
  simp only [show (P m).ox = fun _ _ => 0 from rfl, add_zero]
  change _ ⊢ wp _ _ _ (Pipeline.liftProg (defs₀ (F := F) (.scVector ((K (F := F)).core 17 c) ((K (F := F)).sub 17 i)) 17 ())) _
  refine BI.Entails.trans ?_ (Pipeline.wp_liftProg (D (F := F)) (Pipeline.defs_kernel pcfgs defs₀) 𝒱₀ _ Set.univ none _ _)
  have hc : ((K (F := F)).core 17 c).val < grid17.bound 0 ∧ ((K (F := F)).sub 17 i).val < grid17.bound 1 := ⟨c.isLt, i.isLt⟩
  rw [defs₀_vector17]; simp only [SparseCore.onTile, hc, and_self, ↓reduceDIte]
  exact (hb.b17 hF d (crd ⟨_, hc.1⟩ ⟨_, hc.2⟩) (xt m d) O W hO).trans (wp_mono frame _ _ fun _ => obl_post)

theorem defs₀_vector18 (c : Fin τ.nSC) (s : Fin τ.nSub) :
    defs₀ (F := F) (.scVector c s) 18 ()
      = SparseCore.onTile hcore18 hsub18 (fun c s => cc18_sc_group (fun | 0 => c | 1 => s | ⟨_ + 2, h⟩ => absurd h (Nat.not_lt.2 (Nat.le_add_left _ _))) (Memref.whole main_v0_scv) (Memref.isWhole_whole _) (Memref.whole main_v19_scv) (Memref.isWhole_whole _) (Memref.whole cc18_scratch0) (Memref.isWhole_whole _) (Memref.whole cc18_scratch1) (Memref.isWhole_whole _) (Memref.whole cc18_scratch2) (Memref.isWhole_whole _) (Memref.whole cc18_scratch3) (Memref.isWhole_whole _) cc18_scratch4 cc18_scratch5 cc18_scratch6 cc18_scratch7) ⟨⟩ c s := rfl

theorem tileObl18 (hF : (K (F := F)).Facts) (hb : TileBodies F) : (K (F := F)).TileObl (D (F := F)) 𝒱 (P m) v₀ 18 := by
  intro d c i O W hO _ _
  simp only [show (P m).ox = fun _ _ => 0 from rfl, add_zero]
  change _ ⊢ wp _ _ _ (Pipeline.liftProg (defs₀ (F := F) (.scVector ((K (F := F)).core 18 c) ((K (F := F)).sub 18 i)) 18 ())) _
  refine BI.Entails.trans ?_ (Pipeline.wp_liftProg (D (F := F)) (Pipeline.defs_kernel pcfgs defs₀) 𝒱₀ _ Set.univ none _ _)
  have hc : ((K (F := F)).core 18 c).val < grid18.bound 0 ∧ ((K (F := F)).sub 18 i).val < grid18.bound 1 := ⟨c.isLt, i.isLt⟩
  rw [defs₀_vector18]; simp only [SparseCore.onTile, hc, and_self, ↓reduceDIte]
  exact (hb.b18 hF d (crd ⟨_, hc.1⟩ ⟨_, hc.2⟩) (xt m d) O W hO).trans (wp_mono frame _ _ fun _ => obl_post)

theorem defs₀_vector19 (c : Fin τ.nSC) (s : Fin τ.nSub) :
    defs₀ (F := F) (.scVector c s) 19 ()
      = SparseCore.onTile hcore19 hsub19 (fun c s => cc19_sc_group (fun | 0 => c | 1 => s | ⟨_ + 2, h⟩ => absurd h (Nat.not_lt.2 (Nat.le_add_left _ _))) (Memref.whole main_v0_scv) (Memref.isWhole_whole _) (Memref.whole main_v20_scv) (Memref.isWhole_whole _) (Memref.whole cc19_scratch0) (Memref.isWhole_whole _) (Memref.whole cc19_scratch1) (Memref.isWhole_whole _) (Memref.whole cc19_scratch2) (Memref.isWhole_whole _) (Memref.whole cc19_scratch3) (Memref.isWhole_whole _) cc19_scratch4 cc19_scratch5 cc19_scratch6 cc19_scratch7) ⟨⟩ c s := rfl

theorem tileObl19 (hF : (K (F := F)).Facts) (hb : TileBodies F) : (K (F := F)).TileObl (D (F := F)) 𝒱 (P m) v₀ 19 := by
  intro d c i O W hO _ _
  simp only [show (P m).ox = fun _ _ => 0 from rfl, add_zero]
  change _ ⊢ wp _ _ _ (Pipeline.liftProg (defs₀ (F := F) (.scVector ((K (F := F)).core 19 c) ((K (F := F)).sub 19 i)) 19 ())) _
  refine BI.Entails.trans ?_ (Pipeline.wp_liftProg (D (F := F)) (Pipeline.defs_kernel pcfgs defs₀) 𝒱₀ _ Set.univ none _ _)
  have hc : ((K (F := F)).core 19 c).val < grid19.bound 0 ∧ ((K (F := F)).sub 19 i).val < grid19.bound 1 := ⟨c.isLt, i.isLt⟩
  rw [defs₀_vector19]; simp only [SparseCore.onTile, hc, and_self, ↓reduceDIte]
  exact (hb.b19 hF d (crd ⟨_, hc.1⟩ ⟨_, hc.2⟩) (xt m d) O W hO).trans (wp_mono frame _ _ fun _ => obl_post)

theorem defs₀_vector20 (c : Fin τ.nSC) (s : Fin τ.nSub) :
    defs₀ (F := F) (.scVector c s) 20 ()
      = SparseCore.onTile hcore20 hsub20 (fun c s => cc20_sc_group (fun | 0 => c | 1 => s | ⟨_ + 2, h⟩ => absurd h (Nat.not_lt.2 (Nat.le_add_left _ _))) (Memref.whole main_v0_scv) (Memref.isWhole_whole _) (Memref.whole main_v21_scv) (Memref.isWhole_whole _) (Memref.whole cc20_scratch0) (Memref.isWhole_whole _) (Memref.whole cc20_scratch1) (Memref.isWhole_whole _) (Memref.whole cc20_scratch2) (Memref.isWhole_whole _) (Memref.whole cc20_scratch3) (Memref.isWhole_whole _) cc20_scratch4 cc20_scratch5 cc20_scratch6 cc20_scratch7) ⟨⟩ c s := rfl

theorem tileObl20 (hF : (K (F := F)).Facts) (hb : TileBodies F) : (K (F := F)).TileObl (D (F := F)) 𝒱 (P m) v₀ 20 := by
  intro d c i O W hO _ _
  simp only [show (P m).ox = fun _ _ => 0 from rfl, add_zero]
  change _ ⊢ wp _ _ _ (Pipeline.liftProg (defs₀ (F := F) (.scVector ((K (F := F)).core 20 c) ((K (F := F)).sub 20 i)) 20 ())) _
  refine BI.Entails.trans ?_ (Pipeline.wp_liftProg (D (F := F)) (Pipeline.defs_kernel pcfgs defs₀) 𝒱₀ _ Set.univ none _ _)
  have hc : ((K (F := F)).core 20 c).val < grid20.bound 0 ∧ ((K (F := F)).sub 20 i).val < grid20.bound 1 := ⟨c.isLt, i.isLt⟩
  rw [defs₀_vector20]; simp only [SparseCore.onTile, hc, and_self, ↓reduceDIte]
  exact (hb.b20 hF d (crd ⟨_, hc.1⟩ ⟨_, hc.2⟩) (xt m d) O W hO).trans (wp_mono frame _ _ fun _ => obl_post)

theorem defs₀_vector21 (c : Fin τ.nSC) (s : Fin τ.nSub) :
    defs₀ (F := F) (.scVector c s) 21 ()
      = SparseCore.onTile hcore21 hsub21 (fun c s => cc21_sc_group (fun | 0 => c | 1 => s | ⟨_ + 2, h⟩ => absurd h (Nat.not_lt.2 (Nat.le_add_left _ _))) (Memref.whole main_v0_scv) (Memref.isWhole_whole _) (Memref.whole main_v22_scv) (Memref.isWhole_whole _) (Memref.whole cc21_scratch0) (Memref.isWhole_whole _) (Memref.whole cc21_scratch1) (Memref.isWhole_whole _) (Memref.whole cc21_scratch2) (Memref.isWhole_whole _) (Memref.whole cc21_scratch3) (Memref.isWhole_whole _) cc21_scratch4 cc21_scratch5 cc21_scratch6 cc21_scratch7) ⟨⟩ c s := rfl

theorem tileObl21 (hF : (K (F := F)).Facts) (hb : TileBodies F) : (K (F := F)).TileObl (D (F := F)) 𝒱 (P m) v₀ 21 := by
  intro d c i O W hO _ _
  simp only [show (P m).ox = fun _ _ => 0 from rfl, add_zero]
  change _ ⊢ wp _ _ _ (Pipeline.liftProg (defs₀ (F := F) (.scVector ((K (F := F)).core 21 c) ((K (F := F)).sub 21 i)) 21 ())) _
  refine BI.Entails.trans ?_ (Pipeline.wp_liftProg (D (F := F)) (Pipeline.defs_kernel pcfgs defs₀) 𝒱₀ _ Set.univ none _ _)
  have hc : ((K (F := F)).core 21 c).val < grid21.bound 0 ∧ ((K (F := F)).sub 21 i).val < grid21.bound 1 := ⟨c.isLt, i.isLt⟩
  rw [defs₀_vector21]; simp only [SparseCore.onTile, hc, and_self, ↓reduceDIte]
  exact (hb.b21 hF d (crd ⟨_, hc.1⟩ ⟨_, hc.2⟩) (xt m d) O W hO).trans (wp_mono frame _ _ fun _ => obl_post)

theorem tileObl (hF : (K (F := F)).Facts) (hb : TileBodies F) (q : Fin 22) : (K (F := F)).TileObl (D (F := F)) 𝒱 (P m) v₀ q := match q with
  | 0 => tileObl0 m hF hb
  | 1 => tileObl1 m hF hb
  | 2 => tileObl2 m hF hb
  | 3 => tileObl3 m hF hb
  | 4 => tileObl4 m hF hb
  | 5 => tileObl5 m hF hb
  | 6 => tileObl6 m hF hb
  | 7 => tileObl7 m hF hb
  | 8 => tileObl8 m hF hb
  | 9 => tileObl9 m hF hb
  | 10 => tileObl10 m hF hb
  | 11 => tileObl11 m hF hb
  | 12 => tileObl12 m hF hb
  | 13 => tileObl13 m hF hb
  | 14 => tileObl14 m hF hb
  | 15 => tileObl15 m hF hb
  | 16 => tileObl16 m hF hb
  | 17 => tileObl17 m hF hb
  | 18 => tileObl18 m hF hb
  | 19 => tileObl19 m hF hb
  | 20 => tileObl20 m hF hb
  | 21 => tileObl21 m hF hb
  | ⟨_ + 22, h⟩ => absurd h (Nat.not_lt.2 (Nat.le_add_left _ _))

end Cert.Proof.LaunchKI

end
-- ==== Proof.LaunchValue.lean ====
/-
  Result q of the kernel's program as a term of the argument — row q of the transpose, reshaped to a 1600000 × 1
  array — is column q of the argument.
-/
import proofs.«206869_g37898791420194_cont_8to1_b_558_20_alg».proof.Proof.Gen.KernelIdeal
import proofs.«206869_g37898791420194_cont_8to1_b_558_20_alg».proof.Proof.Spec
import Idealize.ShloMosaic.Lib.Pipeline.Value
import Idealize.ShloMosaic.Lib.ValueIdx

noncomputable section

namespace Cert.Proof.LaunchKI

open Cert.KernelIdeal Cert.KernelIdeal.Gen
open Idealize.ShloMosaic Idealize.ShloMosaic.ValueIdx

/-- Result q as a term of the argument: row q of the transpose, reshaped to a column. -/
def resT {α : Type} (q : Fin 22) (x : S1600000x22.Idx → α) : S1600000x1.Idx → α :=
  fun i => shapeCast S1600000x1 (Cert.Spec.row q (transpose S22x1600000 [1, 0] x transposes_S1600000x22_S22x1600000_1_0)) shapeCasts_S1600000_S1600000x1 i

/-- Entry (i, 0) of the reshaped row is entry i of the row, which is entry (q, i) of the transpose, which is entry
    (i, q) of the argument. -/
theorem result_eq {α : Type} (q : Fin 22) (x : S1600000x22.Idx → α) : resT q x = Cert.Spec.col q x := by
  funext y
  unfold resT
  have h1 : (y 1).val = 0 := by have h : (y 1).val < 1 := (y 1).isLt; omega
  rw [shapeCast_apply _ _ y (ix1 (n := 1600000) (y 0))
    (by rw [Shape.rowMajor_val_one, Shape.rowMajor_val_two]; show (y 0).val = (y 0).val * 1 + (y 1).val; omega)]
  show transpose S22x1600000 [1, 0] x transposes_S1600000x22_S22x1600000_1_0 (ix2 (n0 := 22) (n1 := 1600000) q (y 0)) = x (ix2 (n0 := 1600000) (n1 := 22) (y 0) q)
  exact transpose_apply [1, 0] x _ _ (ix2 (n0 := 1600000) (n1 := 22) (y 0) q) (by intro b; fin_cases b <;> rfl)

end Cert.Proof.LaunchKI

end
-- ==== Proof.CallPieces0.lean ====
/-
  The pieces of one call: row q of the transposed argument, held at some contents, is the 32 vector subcores' pieces of
  it; result q, held whole at some contents, is their pieces of it.
-/
import proofs.«206869_g37898791420194_cont_8to1_b_558_20_alg».proof.Proof.TileK0Defs
import proofs.«206869_g37898791420194_cont_8to1_b_558_20_alg».proof.Proof.LaunchPieces

noncomputable section

namespace Cert.Proof.CallK0

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic
open Cert.Proof.Pieces (crd)

variable {F : FTy → Type}

abbrev UU : Type := URounds (GSem nD τ sig) ℕ × Counters
local notation "𝕄" => MT nD τ sig (HIx 22) (Elt F) ℕ UU ℕ

/-- The call's number. -/
abbrev qK : Fin 22 := 0
theorem hq : qK.val < 22 := qK.isLt

abbrev vx' : DevRef τ sig := Proc.devRef .tc (main_v0 : Ref sig .tc)
abbrev vo' : DevRef τ sig := Proc.devRef .tc (main_v1 : Ref sig .tc)
abbrev ℓx (d : Dev nD) : Loc nD τ sig := (SparseCore.T d).loc main_v0
abbrev ℓo (d : Dev nD) : Loc nD τ sig := (SparseCore.T d).loc main_v1

variable [FloatOps F]

/-- Row q of the transposed argument, held at contents f, is the tasks' pieces of it. -/
theorem x_pieces (d : Dev nD) (f : Buf (Elt F) (ℓx d)) :
    (ℓx d ↦[(Pieces.rowSet qK.val : Finset (Idx (ℓx d)))]{fullShare} f : sProp 𝕄)
      = bigSep Finset.univ fun c : Fin 2 => bigSep Finset.univ fun s : Fin 16 => bigSep (Finset.range 18) (TileK0.xP d (crd c s) f) := by
  rw [← Pieces.in_cover qK.val hq, pointsTo_biUnion _ _ (Pieces.in_disj qK.val hq), Pieces.bigSep_tris]
  refine bigSep_congr fun c _ => bigSep_congr fun s _ => bigSep_congr fun n _ => ?_
  unfold TileK0.xP
  by_cases h : TileK0.valid (crd c s) n
  · rw [if_pos h, if_pos (show Pieces.pnum (c, s, n) < 500 from (TileK0.valid_iff _ _).mp h)]
    show _ = ((TileK0.inM (crd c s) n).view.loc (TileK0.thr d (crd c s)) ↦[(TileK0.inM (crd c s) n).view.set]{fullShare} f)
    rw [show (TileK0.inM (crd c s) n).view.set = Pieces.inSet qK.val hq (c, s, n) from View.set_slice_whole _ _]
  · rw [if_neg h, if_neg (show ¬ Pieces.pnum (c, s, n) < 500 from fun h' => h ((TileK0.valid_iff _ _).mpr h'))]
    rfl

/-- Result q, held whole at contents g, is the tasks' pieces of it at g. -/
theorem o_pieces (d : Dev nD) (g : Buf (Elt F) (ℓo d)) :
    (ℓo d ↦{fullShare} g : sProp 𝕄)
      = bigSep Finset.univ fun c : Fin 2 => bigSep Finset.univ fun s : Fin 16 => bigSep (Finset.range 18) fun n =>
          if TileK0.valid (crd c s) n then
            ((TileK0.outM (crd c s) n).view.loc (TileK0.thr d (crd c s)) ↦[(TileK0.outM (crd c s) n).view.set]{fullShare} g : sProp 𝕄)
          else iprop(emp) := by
  show (ℓo d ↦[(Finset.univ : Finset (Idx (ℓo d)))]{fullShare} g : sProp 𝕄) = _
  rw [← Pieces.out_cover, pointsTo_biUnion _ _ Pieces.out_disj, Pieces.bigSep_tris]
  refine bigSep_congr fun c _ => bigSep_congr fun s _ => bigSep_congr fun n _ => ?_
  by_cases h : TileK0.valid (crd c s) n
  · rw [if_pos h, if_pos (show Pieces.pnum (c, s, n) < 500 from (TileK0.valid_iff _ _).mp h)]
    rw [show (TileK0.outM (crd c s) n).view.set = Pieces.outSet (c, s, n) from View.set_slice_whole _ _]
  · rw [if_neg h, if_neg (show ¬ Pieces.pnum (c, s, n) < 500 from fun h' => h ((TileK0.valid_iff _ _).mpr h'))]
    rfl

end Cert.Proof.CallK0

end
-- ==== Proof.LaunchStep0.lean ====
/-
  One call of a copy kernel, run from the TensorCore: from the TensorCore's buffers held at a valuation whose transposed
  argument is the transpose, the call leaves them at the same valuation but for result q, which holds row q.
-/
import proofs.«206869_g37898791420194_cont_8to1_b_558_20_alg».proof.Proof.LaunchP
import proofs.«206869_g37898791420194_cont_8to1_b_558_20_alg».proof.Proof.CallPieces0

noncomputable section

namespace Cert.Proof.CallK0

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic
open Idealize.ShloMosaic.StableHlo (tcRefs devRef_mem_tcRefs held_sub_split held_congr)
open Cert.Proof.Pieces (crd)
open Cert.Proof.LaunchKI (K D 𝒱 𝒱₀ v₀ EH P xt)

variable {F : FTy → Type}

local notation "𝕄" => MT nD τ sig (HIx 22) (Elt F) ℕ UU ℕ

variable (m : (ℓ : Loc nD τ sig) → Buf (Elt F) ℓ)
variable [FloatOps F]

/-- Result q held whole at some contents gives every task its pieces of it, each at some contents. -/
theorem o_pieces_ex (d : Dev nD) (g : Buf (Elt F) (ℓo d)) :
    (ℓo d ↦{fullShare} g : sProp 𝕄)
      ⊢ bigSep Finset.univ fun c : Fin 2 => bigSep Finset.univ fun s : Fin 16 => bigSep (Finset.range 18) (TileK0.oP (F := F) d (crd c s)) := by
  rw [o_pieces d g]
  refine bigSep_mono fun c _ => bigSep_mono fun s _ => bigSep_mono fun n _ => ?_
  unfold TileK0.oP
  by_cases h : TileK0.valid (crd c s) n
  · rw [if_pos h, if_pos h]
    exact exists_intro (Φ := fun f => (((TileK0.outM (crd c s) n).view.loc (TileK0.thr d (crd c s)) ↦[(TileK0.outM (crd c s) n).view.set]{fullShare} f : sProp 𝕄))) g
  · rw [if_neg h, if_neg h]; exact BI.Entails.refl _

/-- The tasks' pieces of result q, each holding row q of f, are result q whole holding that row. -/
theorem o_pieces_row (d : Dev nD) (f : Buf (Elt F) (ℓx d)) :
    (bigSep Finset.univ fun c : Fin 2 => bigSep Finset.univ fun s : Fin 16 => bigSep (Finset.range 18) (TileK0.oQ d (crd c s) f))
      = (ℓo d ↦{fullShare} (Cert.Spec.row qK f : Buf (Elt F) (ℓo d)) : sProp 𝕄) := by
  rw [o_pieces d (Cert.Spec.row qK f : Buf (Elt F) (ℓo d))]
  rfl

omit [FloatOps F] in
/-- A separating conjunction over the call's grid of vector subcores, or of SparseCores, is one over sixteen, or two. -/
theorem bigSep_castSub (Φ : Fin 16 → sProp 𝕄) :
    (bigSep Finset.univ fun i : Fin ((K (F := F)).nSub qK) => Φ (i.cast (LaunchKI.nSub_eq qK))) = bigSep Finset.univ Φ :=
  bigSep_congr fun _ _ => congrArg Φ (Fin.ext rfl)
omit [FloatOps F] in
theorem bigSep_castCore (Φ : Fin 2 → sProp 𝕄) :
    (bigSep Finset.univ fun c : Fin ((K (F := F)).nCore qK) => Φ (c.cast (LaunchKI.nCore_eq qK))) = bigSep Finset.univ Φ :=
  bigSep_congr fun _ _ => congrArg Φ (Fin.ext rfl)

theorem goQ_eq (d : Dev nD) (c : Fin 2) (s : Fin 16) : LaunchKI.goQ m qK d c s = TileK0.goRes d (crd c s) (xt m d) := rfl
theorem tdQ_eq (d : Dev nD) (c : Fin 2) (s : Fin 16) : LaunchKI.tdQ m qK d c s = TileK0.tdRes d (crd c s) (xt m d) := rfl

/-- What the call takes for the two SparseCores: every task's pieces. -/
theorem st_eq (d : Dev nD) :
    (bigSep Finset.univ fun c : Fin ((K (F := F)).nCore qK) => (P m).st qK d c)
      = iprop((bigSep Finset.univ fun c : Fin 2 => bigSep Finset.univ fun s : Fin 16 => bigSep (Finset.range 18) (TileK0.xP d (crd c s) (xt m d)))
          ∗ (bigSep Finset.univ fun c : Fin 2 => bigSep Finset.univ fun s : Fin 16 => bigSep (Finset.range 18) (TileK0.oP (F := F) d (crd c s)))) := by
  have h1 : (bigSep Finset.univ fun c : Fin ((K (F := F)).nCore qK) => (P m).st qK d c)
      = bigSep Finset.univ fun c : Fin ((K (F := F)).nCore qK) =>
          (fun c' : Fin 2 => bigSep (Finset.univ : Finset (Fin 16)) fun s => LaunchKI.goQ m qK d c' s) (c.cast (LaunchKI.nCore_eq qK)) :=
    bigSep_congr fun c _ => bigSep_castSub (fun s => LaunchKI.goQ m qK d (c.cast (LaunchKI.nCore_eq qK)) s)
  rw [h1, bigSep_castCore (fun c' : Fin 2 => bigSep (Finset.univ : Finset (Fin 16)) fun s => LaunchKI.goQ m qK d c' s), ← bigSep_sep']
  refine bigSep_congr fun c _ => ?_
  rw [← bigSep_sep']
  refine bigSep_congr fun s _ => ?_
  rw [goQ_eq]; rfl

/-- What it hands back. -/
theorem dn_eq (d : Dev nD) :
    (bigSep Finset.univ fun c : Fin ((K (F := F)).nCore qK) => (P m).dn qK d c)
      = iprop((bigSep Finset.univ fun c : Fin 2 => bigSep Finset.univ fun s : Fin 16 => bigSep (Finset.range 18) (TileK0.xP d (crd c s) (xt m d)))
          ∗ (bigSep Finset.univ fun c : Fin 2 => bigSep Finset.univ fun s : Fin 16 => bigSep (Finset.range 18) (TileK0.oQ d (crd c s) (xt m d)))) := by
  have h1 : (bigSep Finset.univ fun c : Fin ((K (F := F)).nCore qK) => (P m).dn qK d c)
      = bigSep Finset.univ fun c : Fin ((K (F := F)).nCore qK) =>
          (fun c' : Fin 2 => bigSep (Finset.univ : Finset (Fin 16)) fun s => LaunchKI.tdQ m qK d c' s) (c.cast (LaunchKI.nCore_eq qK)) :=
    bigSep_congr fun c _ => bigSep_castSub (fun s => LaunchKI.tdQ m qK d (c.cast (LaunchKI.nCore_eq qK)) s)
  rw [h1, bigSep_castCore (fun c' : Fin 2 => bigSep (Finset.univ : Finset (Fin 16)) fun s => LaunchKI.tdQ m qK d c' s), ← bigSep_sep']
  refine bigSep_congr fun c _ => ?_
  rw [← bigSep_sep']
  refine bigSep_congr fun s _ => ?_
  rw [tdQ_eq]; rfl

omit [FloatOps F] in
theorem pair_sub : ({vx', vo'} : Finset (DevRef τ sig)) ⊆ tcRefs τ sig :=
  Finset.insert_subset (devRef_mem_tcRefs _) (Finset.singleton_subset_iff.mpr (devRef_mem_tcRefs _))

omit [FloatOps F] in
theorem held_pair (d : Dev nD) (V : Valuation τ sig (Elt F)) :
    (held (SparseCore.T d) ({vx', vo'} : Finset (DevRef τ sig)) V : sProp 𝕄) = iprop((ℓx d ↦{fullShare} V vx') ∗ (ℓo d ↦{fullShare} V vo')) := by
  unfold held; rw [SparseCore.bigSep_insert' (by decide), bigSep_singleton]

/-- What the call does to the TensorCore's buffers, as an operation on valuations: result q takes row q of the transpose. -/
abbrev opC (d : Dev nD) : HloOp τ sig (Elt F) := StableHlo.nullary main_v1 (Cert.Spec.row qK (xt m d))

/-- The call, from the TensorCore's buffers held at a valuation V whose transposed argument is the transpose: it
    leaves them at V but for result q, which holds row q of the transpose. -/
theorem step (κ : GSem nD τ sig → ℕ) (d : Dev nD) (V : Valuation τ sig (Elt F)) (hV : V vx' = xt m d) {Φ : PUnit → sProp 𝕄} :
    iprop((K (F := F)).ctx EH (P m) κ ∗ (K (F := F)).tcSt EH d qK.val ∗ held (SparseCore.T d) (tcRefs τ sig) V
        ∗ (((K (F := F)).tcSt EH d (qK.val + 1) ∗ held (SparseCore.T d) (tcRefs τ sig) ((opC m d).result V)) -∗ Φ ⟨⟩))
      ⊢ wp frame (wpE ((K (F := F)).defs (D (F := F))) 𝒱 (SparseCore.T d) none) Set.univ ((K (F := F)).run d qK) Φ := by
  rw [held_sub_split (SparseCore.T d) pair_sub V, held_pair, hV]
  iintro ⟨#Hctx, Hst, ⟨⟨Hx, Ho⟩, Hrest⟩, Hk⟩
  ihave Hx' := (pointsTo_split_subset (q := fullShare) (f := xt m d) (Finset.subset_univ (Pieces.rowSet qK.val : Finset (Idx (ℓx d))))).1 $$ Hx
  icases Hx' with ⟨Hrow, Hxrest⟩
  iapply ((K (F := F)).wp_run (D (F := F)) 𝒱 (EH := EH) (P := P m) κ d qK) $$ [Hst Hrow Ho Hk Hxrest Hrest]
  isplitr; · iexact Hctx
  isplitl [Hst]; · iexact Hst
  isplitl [Hrow Ho]
  · rw [st_eq]
    isplitl [Hrow]
    · iapply (Entails.of_eq (x_pieces d (xt m d))); iexact Hrow
    · iapply (o_pieces_ex d (V vo')); iexact Ho
  iintro ⟨Hst, Hdn⟩
  ihave Hdn' := (Entails.of_eq (dn_eq m d)) $$ Hdn
  icases Hdn' with ⟨Hrow, Ho⟩
  ihave Hrow' := (Entails.of_eq (x_pieces d (xt m d)).symm) $$ Hrow
  ihave Ho' := (Entails.of_eq (o_pieces_row d (xt m d))) $$ Ho
  ihave Hx := (pointsTo_split_subset (q := fullShare) (f := xt m d) (Finset.subset_univ (Pieces.rowSet qK.val : Finset (Idx (ℓx d))))).2 $$ [Hrow' Hxrest]
  · isplitl [Hrow']; · iexact Hrow'
    iexact Hxrest
  iapply Hk
  isplitl [Hst]; · iexact Hst
  rw [held_sub_split (SparseCore.T d) pair_sub ((opC m d).result V), held_pair,
    StableHlo.nullary_result_ne _ _ _ V (show (main_v0 : Ref sig .tc) ≠ main_v1 by decide), StableHlo.nullary_result, hV,
    held_congr (SparseCore.T d) (V := (opC m d).result V) (V' := V)
      (fun b hb => (opC m d).result_of_not_mem V (fun hw => (Finset.mem_sdiff.mp hb).2
        (Finset.mem_insert_of_mem (Finset.mem_singleton.mpr (Finset.mem_singleton.mp hw)))))]
  isplitl [Hx Ho']
  · isplitl [Hx]; · iexact Hx
    iexact Ho'
  · iexact Hrest

end Cert.Proof.CallK0

end
-- ==== Proof.CallPieces1.lean ====
/-
  The pieces of one call: row q of the transposed argument, held at some contents, is the 32 vector subcores' pieces of
  it; result q, held whole at some contents, is their pieces of it.
-/
import proofs.«206869_g37898791420194_cont_8to1_b_558_20_alg».proof.Proof.TileK1Defs
import proofs.«206869_g37898791420194_cont_8to1_b_558_20_alg».proof.Proof.LaunchPieces

noncomputable section

namespace Cert.Proof.CallK1

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic
open Cert.Proof.Pieces (crd)

variable {F : FTy → Type}

abbrev UU : Type := URounds (GSem nD τ sig) ℕ × Counters
local notation "𝕄" => MT nD τ sig (HIx 22) (Elt F) ℕ UU ℕ

/-- The call's number. -/
abbrev qK : Fin 22 := 1
theorem hq : qK.val < 22 := qK.isLt

abbrev vx' : DevRef τ sig := Proc.devRef .tc (main_v0 : Ref sig .tc)
abbrev vo' : DevRef τ sig := Proc.devRef .tc (main_v2 : Ref sig .tc)
abbrev ℓx (d : Dev nD) : Loc nD τ sig := (SparseCore.T d).loc main_v0
abbrev ℓo (d : Dev nD) : Loc nD τ sig := (SparseCore.T d).loc main_v2

variable [FloatOps F]

/-- Row q of the transposed argument, held at contents f, is the tasks' pieces of it. -/
theorem x_pieces (d : Dev nD) (f : Buf (Elt F) (ℓx d)) :
    (ℓx d ↦[(Pieces.rowSet qK.val : Finset (Idx (ℓx d)))]{fullShare} f : sProp 𝕄)
      = bigSep Finset.univ fun c : Fin 2 => bigSep Finset.univ fun s : Fin 16 => bigSep (Finset.range 18) (TileK1.xP d (crd c s) f) := by
  rw [← Pieces.in_cover qK.val hq, pointsTo_biUnion _ _ (Pieces.in_disj qK.val hq), Pieces.bigSep_tris]
  refine bigSep_congr fun c _ => bigSep_congr fun s _ => bigSep_congr fun n _ => ?_
  unfold TileK1.xP
  by_cases h : TileK1.valid (crd c s) n
  · rw [if_pos h, if_pos (show Pieces.pnum (c, s, n) < 500 from (TileK1.valid_iff _ _).mp h)]
    show _ = ((TileK1.inM (crd c s) n).view.loc (TileK1.thr d (crd c s)) ↦[(TileK1.inM (crd c s) n).view.set]{fullShare} f)
    rw [show (TileK1.inM (crd c s) n).view.set = Pieces.inSet qK.val hq (c, s, n) from View.set_slice_whole _ _]
  · rw [if_neg h, if_neg (show ¬ Pieces.pnum (c, s, n) < 500 from fun h' => h ((TileK1.valid_iff _ _).mpr h'))]
    rfl

/-- Result q, held whole at contents g, is the tasks' pieces of it at g. -/
theorem o_pieces (d : Dev nD) (g : Buf (Elt F) (ℓo d)) :
    (ℓo d ↦{fullShare} g : sProp 𝕄)
      = bigSep Finset.univ fun c : Fin 2 => bigSep Finset.univ fun s : Fin 16 => bigSep (Finset.range 18) fun n =>
          if TileK1.valid (crd c s) n then
            ((TileK1.outM (crd c s) n).view.loc (TileK1.thr d (crd c s)) ↦[(TileK1.outM (crd c s) n).view.set]{fullShare} g : sProp 𝕄)
          else iprop(emp) := by
  show (ℓo d ↦[(Finset.univ : Finset (Idx (ℓo d)))]{fullShare} g : sProp 𝕄) = _
  rw [← Pieces.out_cover, pointsTo_biUnion _ _ Pieces.out_disj, Pieces.bigSep_tris]
  refine bigSep_congr fun c _ => bigSep_congr fun s _ => bigSep_congr fun n _ => ?_
  by_cases h : TileK1.valid (crd c s) n
  · rw [if_pos h, if_pos (show Pieces.pnum (c, s, n) < 500 from (TileK1.valid_iff _ _).mp h)]
    rw [show (TileK1.outM (crd c s) n).view.set = Pieces.outSet (c, s, n) from View.set_slice_whole _ _]
  · rw [if_neg h, if_neg (show ¬ Pieces.pnum (c, s, n) < 500 from fun h' => h ((TileK1.valid_iff _ _).mpr h'))]
    rfl

end Cert.Proof.CallK1

end
-- ==== Proof.LaunchStep1.lean ====
/-
  One call of a copy kernel, run from the TensorCore: from the TensorCore's buffers held at a valuation whose transposed
  argument is the transpose, the call leaves them at the same valuation but for result q, which holds row q.
-/
import proofs.«206869_g37898791420194_cont_8to1_b_558_20_alg».proof.Proof.LaunchP
import proofs.«206869_g37898791420194_cont_8to1_b_558_20_alg».proof.Proof.CallPieces1

noncomputable section

namespace Cert.Proof.CallK1

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic
open Idealize.ShloMosaic.StableHlo (tcRefs devRef_mem_tcRefs held_sub_split held_congr)
open Cert.Proof.Pieces (crd)
open Cert.Proof.LaunchKI (K D 𝒱 𝒱₀ v₀ EH P xt)

variable {F : FTy → Type}

local notation "𝕄" => MT nD τ sig (HIx 22) (Elt F) ℕ UU ℕ

variable (m : (ℓ : Loc nD τ sig) → Buf (Elt F) ℓ)
variable [FloatOps F]

/-- Result q held whole at some contents gives every task its pieces of it, each at some contents. -/
theorem o_pieces_ex (d : Dev nD) (g : Buf (Elt F) (ℓo d)) :
    (ℓo d ↦{fullShare} g : sProp 𝕄)
      ⊢ bigSep Finset.univ fun c : Fin 2 => bigSep Finset.univ fun s : Fin 16 => bigSep (Finset.range 18) (TileK1.oP (F := F) d (crd c s)) := by
  rw [o_pieces d g]
  refine bigSep_mono fun c _ => bigSep_mono fun s _ => bigSep_mono fun n _ => ?_
  unfold TileK1.oP
  by_cases h : TileK1.valid (crd c s) n
  · rw [if_pos h, if_pos h]
    exact exists_intro (Φ := fun f => (((TileK1.outM (crd c s) n).view.loc (TileK1.thr d (crd c s)) ↦[(TileK1.outM (crd c s) n).view.set]{fullShare} f : sProp 𝕄))) g
  · rw [if_neg h, if_neg h]; exact BI.Entails.refl _

/-- The tasks' pieces of result q, each holding row q of f, are result q whole holding that row. -/
theorem o_pieces_row (d : Dev nD) (f : Buf (Elt F) (ℓx d)) :
    (bigSep Finset.univ fun c : Fin 2 => bigSep Finset.univ fun s : Fin 16 => bigSep (Finset.range 18) (TileK1.oQ d (crd c s) f))
      = (ℓo d ↦{fullShare} (Cert.Spec.row qK f : Buf (Elt F) (ℓo d)) : sProp 𝕄) := by
  rw [o_pieces d (Cert.Spec.row qK f : Buf (Elt F) (ℓo d))]
  rfl

omit [FloatOps F] in
/-- A separating conjunction over the call's grid of vector subcores, or of SparseCores, is one over sixteen, or two. -/
theorem bigSep_castSub (Φ : Fin 16 → sProp 𝕄) :
    (bigSep Finset.univ fun i : Fin ((K (F := F)).nSub qK) => Φ (i.cast (LaunchKI.nSub_eq qK))) = bigSep Finset.univ Φ :=
  bigSep_congr fun _ _ => congrArg Φ (Fin.ext rfl)
omit [FloatOps F] in
theorem bigSep_castCore (Φ : Fin 2 → sProp 𝕄) :
    (bigSep Finset.univ fun c : Fin ((K (F := F)).nCore qK) => Φ (c.cast (LaunchKI.nCore_eq qK))) = bigSep Finset.univ Φ :=
  bigSep_congr fun _ _ => congrArg Φ (Fin.ext rfl)

theorem goQ_eq (d : Dev nD) (c : Fin 2) (s : Fin 16) : LaunchKI.goQ m qK d c s = TileK1.goRes d (crd c s) (xt m d) := rfl
theorem tdQ_eq (d : Dev nD) (c : Fin 2) (s : Fin 16) : LaunchKI.tdQ m qK d c s = TileK1.tdRes d (crd c s) (xt m d) := rfl

/-- What the call takes for the two SparseCores: every task's pieces. -/
theorem st_eq (d : Dev nD) :
    (bigSep Finset.univ fun c : Fin ((K (F := F)).nCore qK) => (P m).st qK d c)
      = iprop((bigSep Finset.univ fun c : Fin 2 => bigSep Finset.univ fun s : Fin 16 => bigSep (Finset.range 18) (TileK1.xP d (crd c s) (xt m d)))
          ∗ (bigSep Finset.univ fun c : Fin 2 => bigSep Finset.univ fun s : Fin 16 => bigSep (Finset.range 18) (TileK1.oP (F := F) d (crd c s)))) := by
  have h1 : (bigSep Finset.univ fun c : Fin ((K (F := F)).nCore qK) => (P m).st qK d c)
      = bigSep Finset.univ fun c : Fin ((K (F := F)).nCore qK) =>
          (fun c' : Fin 2 => bigSep (Finset.univ : Finset (Fin 16)) fun s => LaunchKI.goQ m qK d c' s) (c.cast (LaunchKI.nCore_eq qK)) :=
    bigSep_congr fun c _ => bigSep_castSub (fun s => LaunchKI.goQ m qK d (c.cast (LaunchKI.nCore_eq qK)) s)
  rw [h1, bigSep_castCore (fun c' : Fin 2 => bigSep (Finset.univ : Finset (Fin 16)) fun s => LaunchKI.goQ m qK d c' s), ← bigSep_sep']
  refine bigSep_congr fun c _ => ?_
  rw [← bigSep_sep']
  refine bigSep_congr fun s _ => ?_
  rw [goQ_eq]; rfl

/-- What it hands back. -/
theorem dn_eq (d : Dev nD) :
    (bigSep Finset.univ fun c : Fin ((K (F := F)).nCore qK) => (P m).dn qK d c)
      = iprop((bigSep Finset.univ fun c : Fin 2 => bigSep Finset.univ fun s : Fin 16 => bigSep (Finset.range 18) (TileK1.xP d (crd c s) (xt m d)))
          ∗ (bigSep Finset.univ fun c : Fin 2 => bigSep Finset.univ fun s : Fin 16 => bigSep (Finset.range 18) (TileK1.oQ d (crd c s) (xt m d)))) := by
  have h1 : (bigSep Finset.univ fun c : Fin ((K (F := F)).nCore qK) => (P m).dn qK d c)
      = bigSep Finset.univ fun c : Fin ((K (F := F)).nCore qK) =>
          (fun c' : Fin 2 => bigSep (Finset.univ : Finset (Fin 16)) fun s => LaunchKI.tdQ m qK d c' s) (c.cast (LaunchKI.nCore_eq qK)) :=
    bigSep_congr fun c _ => bigSep_castSub (fun s => LaunchKI.tdQ m qK d (c.cast (LaunchKI.nCore_eq qK)) s)
  rw [h1, bigSep_castCore (fun c' : Fin 2 => bigSep (Finset.univ : Finset (Fin 16)) fun s => LaunchKI.tdQ m qK d c' s), ← bigSep_sep']
  refine bigSep_congr fun c _ => ?_
  rw [← bigSep_sep']
  refine bigSep_congr fun s _ => ?_
  rw [tdQ_eq]; rfl

omit [FloatOps F] in
theorem pair_sub : ({vx', vo'} : Finset (DevRef τ sig)) ⊆ tcRefs τ sig :=
  Finset.insert_subset (devRef_mem_tcRefs _) (Finset.singleton_subset_iff.mpr (devRef_mem_tcRefs _))

omit [FloatOps F] in
theorem held_pair (d : Dev nD) (V : Valuation τ sig (Elt F)) :
    (held (SparseCore.T d) ({vx', vo'} : Finset (DevRef τ sig)) V : sProp 𝕄) = iprop((ℓx d ↦{fullShare} V vx') ∗ (ℓo d ↦{fullShare} V vo')) := by
  unfold held; rw [SparseCore.bigSep_insert' (by decide), bigSep_singleton]

/-- What the call does to the TensorCore's buffers, as an operation on valuations: result q takes row q of the transpose. -/
abbrev opC (d : Dev nD) : HloOp τ sig (Elt F) := StableHlo.nullary main_v2 (Cert.Spec.row qK (xt m d))

/-- The call, from the TensorCore's buffers held at a valuation V whose transposed argument is the transpose: it
    leaves them at V but for result q, which holds row q of the transpose. -/
theorem step (κ : GSem nD τ sig → ℕ) (d : Dev nD) (V : Valuation τ sig (Elt F)) (hV : V vx' = xt m d) {Φ : PUnit → sProp 𝕄} :
    iprop((K (F := F)).ctx EH (P m) κ ∗ (K (F := F)).tcSt EH d qK.val ∗ held (SparseCore.T d) (tcRefs τ sig) V
        ∗ (((K (F := F)).tcSt EH d (qK.val + 1) ∗ held (SparseCore.T d) (tcRefs τ sig) ((opC m d).result V)) -∗ Φ ⟨⟩))
      ⊢ wp frame (wpE ((K (F := F)).defs (D (F := F))) 𝒱 (SparseCore.T d) none) Set.univ ((K (F := F)).run d qK) Φ := by
  rw [held_sub_split (SparseCore.T d) pair_sub V, held_pair, hV]
  iintro ⟨#Hctx, Hst, ⟨⟨Hx, Ho⟩, Hrest⟩, Hk⟩
  ihave Hx' := (pointsTo_split_subset (q := fullShare) (f := xt m d) (Finset.subset_univ (Pieces.rowSet qK.val : Finset (Idx (ℓx d))))).1 $$ Hx
  icases Hx' with ⟨Hrow, Hxrest⟩
  iapply ((K (F := F)).wp_run (D (F := F)) 𝒱 (EH := EH) (P := P m) κ d qK) $$ [Hst Hrow Ho Hk Hxrest Hrest]
  isplitr; · iexact Hctx
  isplitl [Hst]; · iexact Hst
  isplitl [Hrow Ho]
  · rw [st_eq]
    isplitl [Hrow]
    · iapply (Entails.of_eq (x_pieces d (xt m d))); iexact Hrow
    · iapply (o_pieces_ex d (V vo')); iexact Ho
  iintro ⟨Hst, Hdn⟩
  ihave Hdn' := (Entails.of_eq (dn_eq m d)) $$ Hdn
  icases Hdn' with ⟨Hrow, Ho⟩
  ihave Hrow' := (Entails.of_eq (x_pieces d (xt m d)).symm) $$ Hrow
  ihave Ho' := (Entails.of_eq (o_pieces_row d (xt m d))) $$ Ho
  ihave Hx := (pointsTo_split_subset (q := fullShare) (f := xt m d) (Finset.subset_univ (Pieces.rowSet qK.val : Finset (Idx (ℓx d))))).2 $$ [Hrow' Hxrest]
  · isplitl [Hrow']; · iexact Hrow'
    iexact Hxrest
  iapply Hk
  isplitl [Hst]; · iexact Hst
  rw [held_sub_split (SparseCore.T d) pair_sub ((opC m d).result V), held_pair,
    StableHlo.nullary_result_ne _ _ _ V (show (main_v0 : Ref sig .tc) ≠ main_v2 by decide), StableHlo.nullary_result, hV,
    held_congr (SparseCore.T d) (V := (opC m d).result V) (V' := V)
      (fun b hb => (opC m d).result_of_not_mem V (fun hw => (Finset.mem_sdiff.mp hb).2
        (Finset.mem_insert_of_mem (Finset.mem_singleton.mpr (Finset.mem_singleton.mp hw)))))]
  isplitl [Hx Ho']
  · isplitl [Hx]; · iexact Hx
    iexact Ho'
  · iexact Hrest

end Cert.Proof.CallK1

end
-- ==== Proof.CallPieces2.lean ====
/-
  The pieces of one call: row q of the transposed argument, held at some contents, is the 32 vector subcores' pieces of
  it; result q, held whole at some contents, is their pieces of it.
-/
import proofs.«206869_g37898791420194_cont_8to1_b_558_20_alg».proof.Proof.TileK2Defs
import proofs.«206869_g37898791420194_cont_8to1_b_558_20_alg».proof.Proof.LaunchPieces

noncomputable section

namespace Cert.Proof.CallK2

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic
open Cert.Proof.Pieces (crd)

variable {F : FTy → Type}

abbrev UU : Type := URounds (GSem nD τ sig) ℕ × Counters
local notation "𝕄" => MT nD τ sig (HIx 22) (Elt F) ℕ UU ℕ

/-- The call's number. -/
abbrev qK : Fin 22 := 2
theorem hq : qK.val < 22 := qK.isLt

abbrev vx' : DevRef τ sig := Proc.devRef .tc (main_v0 : Ref sig .tc)
abbrev vo' : DevRef τ sig := Proc.devRef .tc (main_v3 : Ref sig .tc)
abbrev ℓx (d : Dev nD) : Loc nD τ sig := (SparseCore.T d).loc main_v0
abbrev ℓo (d : Dev nD) : Loc nD τ sig := (SparseCore.T d).loc main_v3

variable [FloatOps F]

/-- Row q of the transposed argument, held at contents f, is the tasks' pieces of it. -/
theorem x_pieces (d : Dev nD) (f : Buf (Elt F) (ℓx d)) :
    (ℓx d ↦[(Pieces.rowSet qK.val : Finset (Idx (ℓx d)))]{fullShare} f : sProp 𝕄)
      = bigSep Finset.univ fun c : Fin 2 => bigSep Finset.univ fun s : Fin 16 => bigSep (Finset.range 18) (TileK2.xP d (crd c s) f) := by
  rw [← Pieces.in_cover qK.val hq, pointsTo_biUnion _ _ (Pieces.in_disj qK.val hq), Pieces.bigSep_tris]
  refine bigSep_congr fun c _ => bigSep_congr fun s _ => bigSep_congr fun n _ => ?_
  unfold TileK2.xP
  by_cases h : TileK2.valid (crd c s) n
  · rw [if_pos h, if_pos (show Pieces.pnum (c, s, n) < 500 from (TileK2.valid_iff _ _).mp h)]
    show _ = ((TileK2.inM (crd c s) n).view.loc (TileK2.thr d (crd c s)) ↦[(TileK2.inM (crd c s) n).view.set]{fullShare} f)
    rw [show (TileK2.inM (crd c s) n).view.set = Pieces.inSet qK.val hq (c, s, n) from View.set_slice_whole _ _]
  · rw [if_neg h, if_neg (show ¬ Pieces.pnum (c, s, n) < 500 from fun h' => h ((TileK2.valid_iff _ _).mpr h'))]
    rfl

/-- Result q, held whole at contents g, is the tasks' pieces of it at g. -/
theorem o_pieces (d : Dev nD) (g : Buf (Elt F) (ℓo d)) :
    (ℓo d ↦{fullShare} g : sProp 𝕄)
      = bigSep Finset.univ fun c : Fin 2 => bigSep Finset.univ fun s : Fin 16 => bigSep (Finset.range 18) fun n =>
          if TileK2.valid (crd c s) n then
            ((TileK2.outM (crd c s) n).view.loc (TileK2.thr d (crd c s)) ↦[(TileK2.outM (crd c s) n).view.set]{fullShare} g : sProp 𝕄)
          else iprop(emp) := by
  show (ℓo d ↦[(Finset.univ : Finset (Idx (ℓo d)))]{fullShare} g : sProp 𝕄) = _
  rw [← Pieces.out_cover, pointsTo_biUnion _ _ Pieces.out_disj, Pieces.bigSep_tris]
  refine bigSep_congr fun c _ => bigSep_congr fun s _ => bigSep_congr fun n _ => ?_
  by_cases h : TileK2.valid (crd c s) n
  · rw [if_pos h, if_pos (show Pieces.pnum (c, s, n) < 500 from (TileK2.valid_iff _ _).mp h)]
    rw [show (TileK2.outM (crd c s) n).view.set = Pieces.outSet (c, s, n) from View.set_slice_whole _ _]
  · rw [if_neg h, if_neg (show ¬ Pieces.pnum (c, s, n) < 500 from fun h' => h ((TileK2.valid_iff _ _).mpr h'))]
    rfl

end Cert.Proof.CallK2

end
-- ==== Proof.LaunchStep2.lean ====
/-
  One call of a copy kernel, run from the TensorCore: from the TensorCore's buffers held at a valuation whose transposed
  argument is the transpose, the call leaves them at the same valuation but for result q, which holds row q.
-/
import proofs.«206869_g37898791420194_cont_8to1_b_558_20_alg».proof.Proof.LaunchP
import proofs.«206869_g37898791420194_cont_8to1_b_558_20_alg».proof.Proof.CallPieces2

noncomputable section

namespace Cert.Proof.CallK2

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic
open Idealize.ShloMosaic.StableHlo (tcRefs devRef_mem_tcRefs held_sub_split held_congr)
open Cert.Proof.Pieces (crd)
open Cert.Proof.LaunchKI (K D 𝒱 𝒱₀ v₀ EH P xt)

variable {F : FTy → Type}

local notation "𝕄" => MT nD τ sig (HIx 22) (Elt F) ℕ UU ℕ

variable (m : (ℓ : Loc nD τ sig) → Buf (Elt F) ℓ)
variable [FloatOps F]

/-- Result q held whole at some contents gives every task its pieces of it, each at some contents. -/
theorem o_pieces_ex (d : Dev nD) (g : Buf (Elt F) (ℓo d)) :
    (ℓo d ↦{fullShare} g : sProp 𝕄)
      ⊢ bigSep Finset.univ fun c : Fin 2 => bigSep Finset.univ fun s : Fin 16 => bigSep (Finset.range 18) (TileK2.oP (F := F) d (crd c s)) := by
  rw [o_pieces d g]
  refine bigSep_mono fun c _ => bigSep_mono fun s _ => bigSep_mono fun n _ => ?_
  unfold TileK2.oP
  by_cases h : TileK2.valid (crd c s) n
  · rw [if_pos h, if_pos h]
    exact exists_intro (Φ := fun f => (((TileK2.outM (crd c s) n).view.loc (TileK2.thr d (crd c s)) ↦[(TileK2.outM (crd c s) n).view.set]{fullShare} f : sProp 𝕄))) g
  · rw [if_neg h, if_neg h]; exact BI.Entails.refl _

/-- The tasks' pieces of result q, each holding row q of f, are result q whole holding that row. -/
theorem o_pieces_row (d : Dev nD) (f : Buf (Elt F) (ℓx d)) :
    (bigSep Finset.univ fun c : Fin 2 => bigSep Finset.univ fun s : Fin 16 => bigSep (Finset.range 18) (TileK2.oQ d (crd c s) f))
      = (ℓo d ↦{fullShare} (Cert.Spec.row qK f : Buf (Elt F) (ℓo d)) : sProp 𝕄) := by
  rw [o_pieces d (Cert.Spec.row qK f : Buf (Elt F) (ℓo d))]
  rfl

omit [FloatOps F] in
/-- A separating conjunction over the call's grid of vector subcores, or of SparseCores, is one over sixteen, or two. -/
theorem bigSep_castSub (Φ : Fin 16 → sProp 𝕄) :
    (bigSep Finset.univ fun i : Fin ((K (F := F)).nSub qK) => Φ (i.cast (LaunchKI.nSub_eq qK))) = bigSep Finset.univ Φ :=
  bigSep_congr fun _ _ => congrArg Φ (Fin.ext rfl)
omit [FloatOps F] in
theorem bigSep_castCore (Φ : Fin 2 → sProp 𝕄) :
    (bigSep Finset.univ fun c : Fin ((K (F := F)).nCore qK) => Φ (c.cast (LaunchKI.nCore_eq qK))) = bigSep Finset.univ Φ :=
  bigSep_congr fun _ _ => congrArg Φ (Fin.ext rfl)

theorem goQ_eq (d : Dev nD) (c : Fin 2) (s : Fin 16) : LaunchKI.goQ m qK d c s = TileK2.goRes d (crd c s) (xt m d) := rfl
theorem tdQ_eq (d : Dev nD) (c : Fin 2) (s : Fin 16) : LaunchKI.tdQ m qK d c s = TileK2.tdRes d (crd c s) (xt m d) := rfl

/-- What the call takes for the two SparseCores: every task's pieces. -/
theorem st_eq (d : Dev nD) :
    (bigSep Finset.univ fun c : Fin ((K (F := F)).nCore qK) => (P m).st qK d c)
      = iprop((bigSep Finset.univ fun c : Fin 2 => bigSep Finset.univ fun s : Fin 16 => bigSep (Finset.range 18) (TileK2.xP d (crd c s) (xt m d)))
          ∗ (bigSep Finset.univ fun c : Fin 2 => bigSep Finset.univ fun s : Fin 16 => bigSep (Finset.range 18) (TileK2.oP (F := F) d (crd c s)))) := by
  have h1 : (bigSep Finset.univ fun c : Fin ((K (F := F)).nCore qK) => (P m).st qK d c)
      = bigSep Finset.univ fun c : Fin ((K (F := F)).nCore qK) =>
          (fun c' : Fin 2 => bigSep (Finset.univ : Finset (Fin 16)) fun s => LaunchKI.goQ m qK d c' s) (c.cast (LaunchKI.nCore_eq qK)) :=
    bigSep_congr fun c _ => bigSep_castSub (fun s => LaunchKI.goQ m qK d (c.cast (LaunchKI.nCore_eq qK)) s)
  rw [h1, bigSep_castCore (fun c' : Fin 2 => bigSep (Finset.univ : Finset (Fin 16)) fun s => LaunchKI.goQ m qK d c' s), ← bigSep_sep']
  refine bigSep_congr fun c _ => ?_
  rw [← bigSep_sep']
  refine bigSep_congr fun s _ => ?_
  rw [goQ_eq]; rfl

/-- What it hands back. -/
theorem dn_eq (d : Dev nD) :
    (bigSep Finset.univ fun c : Fin ((K (F := F)).nCore qK) => (P m).dn qK d c)
      = iprop((bigSep Finset.univ fun c : Fin 2 => bigSep Finset.univ fun s : Fin 16 => bigSep (Finset.range 18) (TileK2.xP d (crd c s) (xt m d)))
          ∗ (bigSep Finset.univ fun c : Fin 2 => bigSep Finset.univ fun s : Fin 16 => bigSep (Finset.range 18) (TileK2.oQ d (crd c s) (xt m d)))) := by
  have h1 : (bigSep Finset.univ fun c : Fin ((K (F := F)).nCore qK) => (P m).dn qK d c)
      = bigSep Finset.univ fun c : Fin ((K (F := F)).nCore qK) =>
          (fun c' : Fin 2 => bigSep (Finset.univ : Finset (Fin 16)) fun s => LaunchKI.tdQ m qK d c' s) (c.cast (LaunchKI.nCore_eq qK)) :=
    bigSep_congr fun c _ => bigSep_castSub (fun s => LaunchKI.tdQ m qK d (c.cast (LaunchKI.nCore_eq qK)) s)
  rw [h1, bigSep_castCore (fun c' : Fin 2 => bigSep (Finset.univ : Finset (Fin 16)) fun s => LaunchKI.tdQ m qK d c' s), ← bigSep_sep']
  refine bigSep_congr fun c _ => ?_
  rw [← bigSep_sep']
  refine bigSep_congr fun s _ => ?_
  rw [tdQ_eq]; rfl

omit [FloatOps F] in
theorem pair_sub : ({vx', vo'} : Finset (DevRef τ sig)) ⊆ tcRefs τ sig :=
  Finset.insert_subset (devRef_mem_tcRefs _) (Finset.singleton_subset_iff.mpr (devRef_mem_tcRefs _))

omit [FloatOps F] in
theorem held_pair (d : Dev nD) (V : Valuation τ sig (Elt F)) :
    (held (SparseCore.T d) ({vx', vo'} : Finset (DevRef τ sig)) V : sProp 𝕄) = iprop((ℓx d ↦{fullShare} V vx') ∗ (ℓo d ↦{fullShare} V vo')) := by
  unfold held; rw [SparseCore.bigSep_insert' (by decide), bigSep_singleton]

/-- What the call does to the TensorCore's buffers, as an operation on valuations: result q takes row q of the transpose. -/
abbrev opC (d : Dev nD) : HloOp τ sig (Elt F) := StableHlo.nullary main_v3 (Cert.Spec.row qK (xt m d))

/-- The call, from the TensorCore's buffers held at a valuation V whose transposed argument is the transpose: it
    leaves them at V but for result q, which holds row q of the transpose. -/
theorem step (κ : GSem nD τ sig → ℕ) (d : Dev nD) (V : Valuation τ sig (Elt F)) (hV : V vx' = xt m d) {Φ : PUnit → sProp 𝕄} :
    iprop((K (F := F)).ctx EH (P m) κ ∗ (K (F := F)).tcSt EH d qK.val ∗ held (SparseCore.T d) (tcRefs τ sig) V
        ∗ (((K (F := F)).tcSt EH d (qK.val + 1) ∗ held (SparseCore.T d) (tcRefs τ sig) ((opC m d).result V)) -∗ Φ ⟨⟩))
      ⊢ wp frame (wpE ((K (F := F)).defs (D (F := F))) 𝒱 (SparseCore.T d) none) Set.univ ((K (F := F)).run d qK) Φ := by
  rw [held_sub_split (SparseCore.T d) pair_sub V, held_pair, hV]
  iintro ⟨#Hctx, Hst, ⟨⟨Hx, Ho⟩, Hrest⟩, Hk⟩
  ihave Hx' := (pointsTo_split_subset (q := fullShare) (f := xt m d) (Finset.subset_univ (Pieces.rowSet qK.val : Finset (Idx (ℓx d))))).1 $$ Hx
  icases Hx' with ⟨Hrow, Hxrest⟩
  iapply ((K (F := F)).wp_run (D (F := F)) 𝒱 (EH := EH) (P := P m) κ d qK) $$ [Hst Hrow Ho Hk Hxrest Hrest]
  isplitr; · iexact Hctx
  isplitl [Hst]; · iexact Hst
  isplitl [Hrow Ho]
  · rw [st_eq]
    isplitl [Hrow]
    · iapply (Entails.of_eq (x_pieces d (xt m d))); iexact Hrow
    · iapply (o_pieces_ex d (V vo')); iexact Ho
  iintro ⟨Hst, Hdn⟩
  ihave Hdn' := (Entails.of_eq (dn_eq m d)) $$ Hdn
  icases Hdn' with ⟨Hrow, Ho⟩
  ihave Hrow' := (Entails.of_eq (x_pieces d (xt m d)).symm) $$ Hrow
  ihave Ho' := (Entails.of_eq (o_pieces_row d (xt m d))) $$ Ho
  ihave Hx := (pointsTo_split_subset (q := fullShare) (f := xt m d) (Finset.subset_univ (Pieces.rowSet qK.val : Finset (Idx (ℓx d))))).2 $$ [Hrow' Hxrest]
  · isplitl [Hrow']; · iexact Hrow'
    iexact Hxrest
  iapply Hk
  isplitl [Hst]; · iexact Hst
  rw [held_sub_split (SparseCore.T d) pair_sub ((opC m d).result V), held_pair,
    StableHlo.nullary_result_ne _ _ _ V (show (main_v0 : Ref sig .tc) ≠ main_v3 by decide), StableHlo.nullary_result, hV,
    held_congr (SparseCore.T d) (V := (opC m d).result V) (V' := V)
      (fun b hb => (opC m d).result_of_not_mem V (fun hw => (Finset.mem_sdiff.mp hb).2
        (Finset.mem_insert_of_mem (Finset.mem_singleton.mpr (Finset.mem_singleton.mp hw)))))]
  isplitl [Hx Ho']
  · isplitl [Hx]; · iexact Hx
    iexact Ho'
  · iexact Hrest

end Cert.Proof.CallK2

end
-- ==== Proof.CallPieces3.lean ====
/-
  The pieces of one call: row q of the transposed argument, held at some contents, is the 32 vector subcores' pieces of
  it; result q, held whole at some contents, is their pieces of it.
-/
import proofs.«206869_g37898791420194_cont_8to1_b_558_20_alg».proof.Proof.TileK3Defs
import proofs.«206869_g37898791420194_cont_8to1_b_558_20_alg».proof.Proof.LaunchPieces

noncomputable section

namespace Cert.Proof.CallK3

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic
open Cert.Proof.Pieces (crd)

variable {F : FTy → Type}

abbrev UU : Type := URounds (GSem nD τ sig) ℕ × Counters
local notation "𝕄" => MT nD τ sig (HIx 22) (Elt F) ℕ UU ℕ

/-- The call's number. -/
abbrev qK : Fin 22 := 3
theorem hq : qK.val < 22 := qK.isLt

abbrev vx' : DevRef τ sig := Proc.devRef .tc (main_v0 : Ref sig .tc)
abbrev vo' : DevRef τ sig := Proc.devRef .tc (main_v4 : Ref sig .tc)
abbrev ℓx (d : Dev nD) : Loc nD τ sig := (SparseCore.T d).loc main_v0
abbrev ℓo (d : Dev nD) : Loc nD τ sig := (SparseCore.T d).loc main_v4

variable [FloatOps F]

/-- Row q of the transposed argument, held at contents f, is the tasks' pieces of it. -/
theorem x_pieces (d : Dev nD) (f : Buf (Elt F) (ℓx d)) :
    (ℓx d ↦[(Pieces.rowSet qK.val : Finset (Idx (ℓx d)))]{fullShare} f : sProp 𝕄)
      = bigSep Finset.univ fun c : Fin 2 => bigSep Finset.univ fun s : Fin 16 => bigSep (Finset.range 18) (TileK3.xP d (crd c s) f) := by
  rw [← Pieces.in_cover qK.val hq, pointsTo_biUnion _ _ (Pieces.in_disj qK.val hq), Pieces.bigSep_tris]
  refine bigSep_congr fun c _ => bigSep_congr fun s _ => bigSep_congr fun n _ => ?_
  unfold TileK3.xP
  by_cases h : TileK3.valid (crd c s) n
  · rw [if_pos h, if_pos (show Pieces.pnum (c, s, n) < 500 from (TileK3.valid_iff _ _).mp h)]
    show _ = ((TileK3.inM (crd c s) n).view.loc (TileK3.thr d (crd c s)) ↦[(TileK3.inM (crd c s) n).view.set]{fullShare} f)
    rw [show (TileK3.inM (crd c s) n).view.set = Pieces.inSet qK.val hq (c, s, n) from View.set_slice_whole _ _]
  · rw [if_neg h, if_neg (show ¬ Pieces.pnum (c, s, n) < 500 from fun h' => h ((TileK3.valid_iff _ _).mpr h'))]
    rfl

/-- Result q, held whole at contents g, is the tasks' pieces of it at g. -/
theorem o_pieces (d : Dev nD) (g : Buf (Elt F) (ℓo d)) :
    (ℓo d ↦{fullShare} g : sProp 𝕄)
      = bigSep Finset.univ fun c : Fin 2 => bigSep Finset.univ fun s : Fin 16 => bigSep (Finset.range 18) fun n =>
          if TileK3.valid (crd c s) n then
            ((TileK3.outM (crd c s) n).view.loc (TileK3.thr d (crd c s)) ↦[(TileK3.outM (crd c s) n).view.set]{fullShare} g : sProp 𝕄)
          else iprop(emp) := by
  show (ℓo d ↦[(Finset.univ : Finset (Idx (ℓo d)))]{fullShare} g : sProp 𝕄) = _
  rw [← Pieces.out_cover, pointsTo_biUnion _ _ Pieces.out_disj, Pieces.bigSep_tris]
  refine bigSep_congr fun c _ => bigSep_congr fun s _ => bigSep_congr fun n _ => ?_
  by_cases h : TileK3.valid (crd c s) n
  · rw [if_pos h, if_pos (show Pieces.pnum (c, s, n) < 500 from (TileK3.valid_iff _ _).mp h)]
    rw [show (TileK3.outM (crd c s) n).view.set = Pieces.outSet (c, s, n) from View.set_slice_whole _ _]
  · rw [if_neg h, if_neg (show ¬ Pieces.pnum (c, s, n) < 500 from fun h' => h ((TileK3.valid_iff _ _).mpr h'))]
    rfl

end Cert.Proof.CallK3

end
-- ==== Proof.LaunchStep3.lean ====
/-
  One call of a copy kernel, run from the TensorCore: from the TensorCore's buffers held at a valuation whose transposed
  argument is the transpose, the call leaves them at the same valuation but for result q, which holds row q.
-/
import proofs.«206869_g37898791420194_cont_8to1_b_558_20_alg».proof.Proof.LaunchP
import proofs.«206869_g37898791420194_cont_8to1_b_558_20_alg».proof.Proof.CallPieces3

noncomputable section

namespace Cert.Proof.CallK3

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic
open Idealize.ShloMosaic.StableHlo (tcRefs devRef_mem_tcRefs held_sub_split held_congr)
open Cert.Proof.Pieces (crd)
open Cert.Proof.LaunchKI (K D 𝒱 𝒱₀ v₀ EH P xt)

variable {F : FTy → Type}

local notation "𝕄" => MT nD τ sig (HIx 22) (Elt F) ℕ UU ℕ

variable (m : (ℓ : Loc nD τ sig) → Buf (Elt F) ℓ)
variable [FloatOps F]

/-- Result q held whole at some contents gives every task its pieces of it, each at some contents. -/
theorem o_pieces_ex (d : Dev nD) (g : Buf (Elt F) (ℓo d)) :
    (ℓo d ↦{fullShare} g : sProp 𝕄)
      ⊢ bigSep Finset.univ fun c : Fin 2 => bigSep Finset.univ fun s : Fin 16 => bigSep (Finset.range 18) (TileK3.oP (F := F) d (crd c s)) := by
  rw [o_pieces d g]
  refine bigSep_mono fun c _ => bigSep_mono fun s _ => bigSep_mono fun n _ => ?_
  unfold TileK3.oP
  by_cases h : TileK3.valid (crd c s) n
  · rw [if_pos h, if_pos h]
    exact exists_intro (Φ := fun f => (((TileK3.outM (crd c s) n).view.loc (TileK3.thr d (crd c s)) ↦[(TileK3.outM (crd c s) n).view.set]{fullShare} f : sProp 𝕄))) g
  · rw [if_neg h, if_neg h]; exact BI.Entails.refl _

/-- The tasks' pieces of result q, each holding row q of f, are result q whole holding that row. -/
theorem o_pieces_row (d : Dev nD) (f : Buf (Elt F) (ℓx d)) :
    (bigSep Finset.univ fun c : Fin 2 => bigSep Finset.univ fun s : Fin 16 => bigSep (Finset.range 18) (TileK3.oQ d (crd c s) f))
      = (ℓo d ↦{fullShare} (Cert.Spec.row qK f : Buf (Elt F) (ℓo d)) : sProp 𝕄) := by
  rw [o_pieces d (Cert.Spec.row qK f : Buf (Elt F) (ℓo d))]
  rfl

omit [FloatOps F] in
/-- A separating conjunction over the call's grid of vector subcores, or of SparseCores, is one over sixteen, or two. -/
theorem bigSep_castSub (Φ : Fin 16 → sProp 𝕄) :
    (bigSep Finset.univ fun i : Fin ((K (F := F)).nSub qK) => Φ (i.cast (LaunchKI.nSub_eq qK))) = bigSep Finset.univ Φ :=
  bigSep_congr fun _ _ => congrArg Φ (Fin.ext rfl)
omit [FloatOps F] in
theorem bigSep_castCore (Φ : Fin 2 → sProp 𝕄) :
    (bigSep Finset.univ fun c : Fin ((K (F := F)).nCore qK) => Φ (c.cast (LaunchKI.nCore_eq qK))) = bigSep Finset.univ Φ :=
  bigSep_congr fun _ _ => congrArg Φ (Fin.ext rfl)

theorem goQ_eq (d : Dev nD) (c : Fin 2) (s : Fin 16) : LaunchKI.goQ m qK d c s = TileK3.goRes d (crd c s) (xt m d) := rfl
theorem tdQ_eq (d : Dev nD) (c : Fin 2) (s : Fin 16) : LaunchKI.tdQ m qK d c s = TileK3.tdRes d (crd c s) (xt m d) := rfl

/-- What the call takes for the two SparseCores: every task's pieces. -/
theorem st_eq (d : Dev nD) :
    (bigSep Finset.univ fun c : Fin ((K (F := F)).nCore qK) => (P m).st qK d c)
      = iprop((bigSep Finset.univ fun c : Fin 2 => bigSep Finset.univ fun s : Fin 16 => bigSep (Finset.range 18) (TileK3.xP d (crd c s) (xt m d)))
          ∗ (bigSep Finset.univ fun c : Fin 2 => bigSep Finset.univ fun s : Fin 16 => bigSep (Finset.range 18) (TileK3.oP (F := F) d (crd c s)))) := by
  have h1 : (bigSep Finset.univ fun c : Fin ((K (F := F)).nCore qK) => (P m).st qK d c)
      = bigSep Finset.univ fun c : Fin ((K (F := F)).nCore qK) =>
          (fun c' : Fin 2 => bigSep (Finset.univ : Finset (Fin 16)) fun s => LaunchKI.goQ m qK d c' s) (c.cast (LaunchKI.nCore_eq qK)) :=
    bigSep_congr fun c _ => bigSep_castSub (fun s => LaunchKI.goQ m qK d (c.cast (LaunchKI.nCore_eq qK)) s)
  rw [h1, bigSep_castCore (fun c' : Fin 2 => bigSep (Finset.univ : Finset (Fin 16)) fun s => LaunchKI.goQ m qK d c' s), ← bigSep_sep']
  refine bigSep_congr fun c _ => ?_
  rw [← bigSep_sep']
  refine bigSep_congr fun s _ => ?_
  rw [goQ_eq]; rfl

/-- What it hands back. -/
theorem dn_eq (d : Dev nD) :
    (bigSep Finset.univ fun c : Fin ((K (F := F)).nCore qK) => (P m).dn qK d c)
      = iprop((bigSep Finset.univ fun c : Fin 2 => bigSep Finset.univ fun s : Fin 16 => bigSep (Finset.range 18) (TileK3.xP d (crd c s) (xt m d)))
          ∗ (bigSep Finset.univ fun c : Fin 2 => bigSep Finset.univ fun s : Fin 16 => bigSep (Finset.range 18) (TileK3.oQ d (crd c s) (xt m d)))) := by
  have h1 : (bigSep Finset.univ fun c : Fin ((K (F := F)).nCore qK) => (P m).dn qK d c)
      = bigSep Finset.univ fun c : Fin ((K (F := F)).nCore qK) =>
          (fun c' : Fin 2 => bigSep (Finset.univ : Finset (Fin 16)) fun s => LaunchKI.tdQ m qK d c' s) (c.cast (LaunchKI.nCore_eq qK)) :=
    bigSep_congr fun c _ => bigSep_castSub (fun s => LaunchKI.tdQ m qK d (c.cast (LaunchKI.nCore_eq qK)) s)
  rw [h1, bigSep_castCore (fun c' : Fin 2 => bigSep (Finset.univ : Finset (Fin 16)) fun s => LaunchKI.tdQ m qK d c' s), ← bigSep_sep']
  refine bigSep_congr fun c _ => ?_
  rw [← bigSep_sep']
  refine bigSep_congr fun s _ => ?_
  rw [tdQ_eq]; rfl

omit [FloatOps F] in
theorem pair_sub : ({vx', vo'} : Finset (DevRef τ sig)) ⊆ tcRefs τ sig :=
  Finset.insert_subset (devRef_mem_tcRefs _) (Finset.singleton_subset_iff.mpr (devRef_mem_tcRefs _))

omit [FloatOps F] in
theorem held_pair (d : Dev nD) (V : Valuation τ sig (Elt F)) :
    (held (SparseCore.T d) ({vx', vo'} : Finset (DevRef τ sig)) V : sProp 𝕄) = iprop((ℓx d ↦{fullShare} V vx') ∗ (ℓo d ↦{fullShare} V vo')) := by
  unfold held; rw [SparseCore.bigSep_insert' (by decide), bigSep_singleton]

/-- What the call does to the TensorCore's buffers, as an operation on valuations: result q takes row q of the transpose. -/
abbrev opC (d : Dev nD) : HloOp τ sig (Elt F) := StableHlo.nullary main_v4 (Cert.Spec.row qK (xt m d))

/-- The call, from the TensorCore's buffers held at a valuation V whose transposed argument is the transpose: it
    leaves them at V but for result q, which holds row q of the transpose. -/
theorem step (κ : GSem nD τ sig → ℕ) (d : Dev nD) (V : Valuation τ sig (Elt F)) (hV : V vx' = xt m d) {Φ : PUnit → sProp 𝕄} :
    iprop((K (F := F)).ctx EH (P m) κ ∗ (K (F := F)).tcSt EH d qK.val ∗ held (SparseCore.T d) (tcRefs τ sig) V
        ∗ (((K (F := F)).tcSt EH d (qK.val + 1) ∗ held (SparseCore.T d) (tcRefs τ sig) ((opC m d).result V)) -∗ Φ ⟨⟩))
      ⊢ wp frame (wpE ((K (F := F)).defs (D (F := F))) 𝒱 (SparseCore.T d) none) Set.univ ((K (F := F)).run d qK) Φ := by
  rw [held_sub_split (SparseCore.T d) pair_sub V, held_pair, hV]
  iintro ⟨#Hctx, Hst, ⟨⟨Hx, Ho⟩, Hrest⟩, Hk⟩
  ihave Hx' := (pointsTo_split_subset (q := fullShare) (f := xt m d) (Finset.subset_univ (Pieces.rowSet qK.val : Finset (Idx (ℓx d))))).1 $$ Hx
  icases Hx' with ⟨Hrow, Hxrest⟩
  iapply ((K (F := F)).wp_run (D (F := F)) 𝒱 (EH := EH) (P := P m) κ d qK) $$ [Hst Hrow Ho Hk Hxrest Hrest]
  isplitr; · iexact Hctx
  isplitl [Hst]; · iexact Hst
  isplitl [Hrow Ho]
  · rw [st_eq]
    isplitl [Hrow]
    · iapply (Entails.of_eq (x_pieces d (xt m d))); iexact Hrow
    · iapply (o_pieces_ex d (V vo')); iexact Ho
  iintro ⟨Hst, Hdn⟩
  ihave Hdn' := (Entails.of_eq (dn_eq m d)) $$ Hdn
  icases Hdn' with ⟨Hrow, Ho⟩
  ihave Hrow' := (Entails.of_eq (x_pieces d (xt m d)).symm) $$ Hrow
  ihave Ho' := (Entails.of_eq (o_pieces_row d (xt m d))) $$ Ho
  ihave Hx := (pointsTo_split_subset (q := fullShare) (f := xt m d) (Finset.subset_univ (Pieces.rowSet qK.val : Finset (Idx (ℓx d))))).2 $$ [Hrow' Hxrest]
  · isplitl [Hrow']; · iexact Hrow'
    iexact Hxrest
  iapply Hk
  isplitl [Hst]; · iexact Hst
  rw [held_sub_split (SparseCore.T d) pair_sub ((opC m d).result V), held_pair,
    StableHlo.nullary_result_ne _ _ _ V (show (main_v0 : Ref sig .tc) ≠ main_v4 by decide), StableHlo.nullary_result, hV,
    held_congr (SparseCore.T d) (V := (opC m d).result V) (V' := V)
      (fun b hb => (opC m d).result_of_not_mem V (fun hw => (Finset.mem_sdiff.mp hb).2
        (Finset.mem_insert_of_mem (Finset.mem_singleton.mpr (Finset.mem_singleton.mp hw)))))]
  isplitl [Hx Ho']
  · isplitl [Hx]; · iexact Hx
    iexact Ho'
  · iexact Hrest

end Cert.Proof.CallK3

end
-- ==== Proof.CallPieces4.lean ====
/-
  The pieces of one call: row q of the transposed argument, held at some contents, is the 32 vector subcores' pieces of
  it; result q, held whole at some contents, is their pieces of it.
-/
import proofs.«206869_g37898791420194_cont_8to1_b_558_20_alg».proof.Proof.TileK4Defs
import proofs.«206869_g37898791420194_cont_8to1_b_558_20_alg».proof.Proof.LaunchPieces

noncomputable section

namespace Cert.Proof.CallK4

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic
open Cert.Proof.Pieces (crd)

variable {F : FTy → Type}

abbrev UU : Type := URounds (GSem nD τ sig) ℕ × Counters
local notation "𝕄" => MT nD τ sig (HIx 22) (Elt F) ℕ UU ℕ

/-- The call's number. -/
abbrev qK : Fin 22 := 4
theorem hq : qK.val < 22 := qK.isLt

abbrev vx' : DevRef τ sig := Proc.devRef .tc (main_v0 : Ref sig .tc)
abbrev vo' : DevRef τ sig := Proc.devRef .tc (main_v5 : Ref sig .tc)
abbrev ℓx (d : Dev nD) : Loc nD τ sig := (SparseCore.T d).loc main_v0
abbrev ℓo (d : Dev nD) : Loc nD τ sig := (SparseCore.T d).loc main_v5

variable [FloatOps F]

/-- Row q of the transposed argument, held at contents f, is the tasks' pieces of it. -/
theorem x_pieces (d : Dev nD) (f : Buf (Elt F) (ℓx d)) :
    (ℓx d ↦[(Pieces.rowSet qK.val : Finset (Idx (ℓx d)))]{fullShare} f : sProp 𝕄)
      = bigSep Finset.univ fun c : Fin 2 => bigSep Finset.univ fun s : Fin 16 => bigSep (Finset.range 18) (TileK4.xP d (crd c s) f) := by
  rw [← Pieces.in_cover qK.val hq, pointsTo_biUnion _ _ (Pieces.in_disj qK.val hq), Pieces.bigSep_tris]
  refine bigSep_congr fun c _ => bigSep_congr fun s _ => bigSep_congr fun n _ => ?_
  unfold TileK4.xP
  by_cases h : TileK4.valid (crd c s) n
  · rw [if_pos h, if_pos (show Pieces.pnum (c, s, n) < 500 from (TileK4.valid_iff _ _).mp h)]
    show _ = ((TileK4.inM (crd c s) n).view.loc (TileK4.thr d (crd c s)) ↦[(TileK4.inM (crd c s) n).view.set]{fullShare} f)
    rw [show (TileK4.inM (crd c s) n).view.set = Pieces.inSet qK.val hq (c, s, n) from View.set_slice_whole _ _]
  · rw [if_neg h, if_neg (show ¬ Pieces.pnum (c, s, n) < 500 from fun h' => h ((TileK4.valid_iff _ _).mpr h'))]
    rfl

/-- Result q, held whole at contents g, is the tasks' pieces of it at g. -/
theorem o_pieces (d : Dev nD) (g : Buf (Elt F) (ℓo d)) :
    (ℓo d ↦{fullShare} g : sProp 𝕄)
      = bigSep Finset.univ fun c : Fin 2 => bigSep Finset.univ fun s : Fin 16 => bigSep (Finset.range 18) fun n =>
          if TileK4.valid (crd c s) n then
            ((TileK4.outM (crd c s) n).view.loc (TileK4.thr d (crd c s)) ↦[(TileK4.outM (crd c s) n).view.set]{fullShare} g : sProp 𝕄)
          else iprop(emp) := by
  show (ℓo d ↦[(Finset.univ : Finset (Idx (ℓo d)))]{fullShare} g : sProp 𝕄) = _
  rw [← Pieces.out_cover, pointsTo_biUnion _ _ Pieces.out_disj, Pieces.bigSep_tris]
  refine bigSep_congr fun c _ => bigSep_congr fun s _ => bigSep_congr fun n _ => ?_
  by_cases h : TileK4.valid (crd c s) n
  · rw [if_pos h, if_pos (show Pieces.pnum (c, s, n) < 500 from (TileK4.valid_iff _ _).mp h)]
    rw [show (TileK4.outM (crd c s) n).view.set = Pieces.outSet (c, s, n) from View.set_slice_whole _ _]
  · rw [if_neg h, if_neg (show ¬ Pieces.pnum (c, s, n) < 500 from fun h' => h ((TileK4.valid_iff _ _).mpr h'))]
    rfl

end Cert.Proof.CallK4

end
-- ==== Proof.LaunchStep4.lean ====
/-
  One call of a copy kernel, run from the TensorCore: from the TensorCore's buffers held at a valuation whose transposed
  argument is the transpose, the call leaves them at the same valuation but for result q, which holds row q.
-/
import proofs.«206869_g37898791420194_cont_8to1_b_558_20_alg».proof.Proof.LaunchP
import proofs.«206869_g37898791420194_cont_8to1_b_558_20_alg».proof.Proof.CallPieces4

noncomputable section

namespace Cert.Proof.CallK4

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic
open Idealize.ShloMosaic.StableHlo (tcRefs devRef_mem_tcRefs held_sub_split held_congr)
open Cert.Proof.Pieces (crd)
open Cert.Proof.LaunchKI (K D 𝒱 𝒱₀ v₀ EH P xt)

variable {F : FTy → Type}

local notation "𝕄" => MT nD τ sig (HIx 22) (Elt F) ℕ UU ℕ

variable (m : (ℓ : Loc nD τ sig) → Buf (Elt F) ℓ)
variable [FloatOps F]

/-- Result q held whole at some contents gives every task its pieces of it, each at some contents. -/
theorem o_pieces_ex (d : Dev nD) (g : Buf (Elt F) (ℓo d)) :
    (ℓo d ↦{fullShare} g : sProp 𝕄)
      ⊢ bigSep Finset.univ fun c : Fin 2 => bigSep Finset.univ fun s : Fin 16 => bigSep (Finset.range 18) (TileK4.oP (F := F) d (crd c s)) := by
  rw [o_pieces d g]
  refine bigSep_mono fun c _ => bigSep_mono fun s _ => bigSep_mono fun n _ => ?_
  unfold TileK4.oP
  by_cases h : TileK4.valid (crd c s) n
  · rw [if_pos h, if_pos h]
    exact exists_intro (Φ := fun f => (((TileK4.outM (crd c s) n).view.loc (TileK4.thr d (crd c s)) ↦[(TileK4.outM (crd c s) n).view.set]{fullShare} f : sProp 𝕄))) g
  · rw [if_neg h, if_neg h]; exact BI.Entails.refl _

/-- The tasks' pieces of result q, each holding row q of f, are result q whole holding that row. -/
theorem o_pieces_row (d : Dev nD) (f : Buf (Elt F) (ℓx d)) :
    (bigSep Finset.univ fun c : Fin 2 => bigSep Finset.univ fun s : Fin 16 => bigSep (Finset.range 18) (TileK4.oQ d (crd c s) f))
      = (ℓo d ↦{fullShare} (Cert.Spec.row qK f : Buf (Elt F) (ℓo d)) : sProp 𝕄) := by
  rw [o_pieces d (Cert.Spec.row qK f : Buf (Elt F) (ℓo d))]
  rfl

omit [FloatOps F] in
/-- A separating conjunction over the call's grid of vector subcores, or of SparseCores, is one over sixteen, or two. -/
theorem bigSep_castSub (Φ : Fin 16 → sProp 𝕄) :
    (bigSep Finset.univ fun i : Fin ((K (F := F)).nSub qK) => Φ (i.cast (LaunchKI.nSub_eq qK))) = bigSep Finset.univ Φ :=
  bigSep_congr fun _ _ => congrArg Φ (Fin.ext rfl)
omit [FloatOps F] in
theorem bigSep_castCore (Φ : Fin 2 → sProp 𝕄) :
    (bigSep Finset.univ fun c : Fin ((K (F := F)).nCore qK) => Φ (c.cast (LaunchKI.nCore_eq qK))) = bigSep Finset.univ Φ :=
  bigSep_congr fun _ _ => congrArg Φ (Fin.ext rfl)

theorem goQ_eq (d : Dev nD) (c : Fin 2) (s : Fin 16) : LaunchKI.goQ m qK d c s = TileK4.goRes d (crd c s) (xt m d) := rfl
theorem tdQ_eq (d : Dev nD) (c : Fin 2) (s : Fin 16) : LaunchKI.tdQ m qK d c s = TileK4.tdRes d (crd c s) (xt m d) := rfl

/-- What the call takes for the two SparseCores: every task's pieces. -/
theorem st_eq (d : Dev nD) :
    (bigSep Finset.univ fun c : Fin ((K (F := F)).nCore qK) => (P m).st qK d c)
      = iprop((bigSep Finset.univ fun c : Fin 2 => bigSep Finset.univ fun s : Fin 16 => bigSep (Finset.range 18) (TileK4.xP d (crd c s) (xt m d)))
          ∗ (bigSep Finset.univ fun c : Fin 2 => bigSep Finset.univ fun s : Fin 16 => bigSep (Finset.range 18) (TileK4.oP (F := F) d (crd c s)))) := by
  have h1 : (bigSep Finset.univ fun c : Fin ((K (F := F)).nCore qK) => (P m).st qK d c)
      = bigSep Finset.univ fun c : Fin ((K (F := F)).nCore qK) =>
          (fun c' : Fin 2 => bigSep (Finset.univ : Finset (Fin 16)) fun s => LaunchKI.goQ m qK d c' s) (c.cast (LaunchKI.nCore_eq qK)) :=
    bigSep_congr fun c _ => bigSep_castSub (fun s => LaunchKI.goQ m qK d (c.cast (LaunchKI.nCore_eq qK)) s)
  rw [h1, bigSep_castCore (fun c' : Fin 2 => bigSep (Finset.univ : Finset (Fin 16)) fun s => LaunchKI.goQ m qK d c' s), ← bigSep_sep']
  refine bigSep_congr fun c _ => ?_
  rw [← bigSep_sep']
  refine bigSep_congr fun s _ => ?_
  rw [goQ_eq]; rfl

/-- What it hands back. -/
theorem dn_eq (d : Dev nD) :
    (bigSep Finset.univ fun c : Fin ((K (F := F)).nCore qK) => (P m).dn qK d c)
      = iprop((bigSep Finset.univ fun c : Fin 2 => bigSep Finset.univ fun s : Fin 16 => bigSep (Finset.range 18) (TileK4.xP d (crd c s) (xt m d)))
          ∗ (bigSep Finset.univ fun c : Fin 2 => bigSep Finset.univ fun s : Fin 16 => bigSep (Finset.range 18) (TileK4.oQ d (crd c s) (xt m d)))) := by
  have h1 : (bigSep Finset.univ fun c : Fin ((K (F := F)).nCore qK) => (P m).dn qK d c)
      = bigSep Finset.univ fun c : Fin ((K (F := F)).nCore qK) =>
          (fun c' : Fin 2 => bigSep (Finset.univ : Finset (Fin 16)) fun s => LaunchKI.tdQ m qK d c' s) (c.cast (LaunchKI.nCore_eq qK)) :=
    bigSep_congr fun c _ => bigSep_castSub (fun s => LaunchKI.tdQ m qK d (c.cast (LaunchKI.nCore_eq qK)) s)
  rw [h1, bigSep_castCore (fun c' : Fin 2 => bigSep (Finset.univ : Finset (Fin 16)) fun s => LaunchKI.tdQ m qK d c' s), ← bigSep_sep']
  refine bigSep_congr fun c _ => ?_
  rw [← bigSep_sep']
  refine bigSep_congr fun s _ => ?_
  rw [tdQ_eq]; rfl

omit [FloatOps F] in
theorem pair_sub : ({vx', vo'} : Finset (DevRef τ sig)) ⊆ tcRefs τ sig :=
  Finset.insert_subset (devRef_mem_tcRefs _) (Finset.singleton_subset_iff.mpr (devRef_mem_tcRefs _))

omit [FloatOps F] in
theorem held_pair (d : Dev nD) (V : Valuation τ sig (Elt F)) :
    (held (SparseCore.T d) ({vx', vo'} : Finset (DevRef τ sig)) V : sProp 𝕄) = iprop((ℓx d ↦{fullShare} V vx') ∗ (ℓo d ↦{fullShare} V vo')) := by
  unfold held; rw [SparseCore.bigSep_insert' (by decide), bigSep_singleton]

/-- What the call does to the TensorCore's buffers, as an operation on valuations: result q takes row q of the transpose. -/
abbrev opC (d : Dev nD) : HloOp τ sig (Elt F) := StableHlo.nullary main_v5 (Cert.Spec.row qK (xt m d))

/-- The call, from the TensorCore's buffers held at a valuation V whose transposed argument is the transpose: it
    leaves them at V but for result q, which holds row q of the transpose. -/
theorem step (κ : GSem nD τ sig → ℕ) (d : Dev nD) (V : Valuation τ sig (Elt F)) (hV : V vx' = xt m d) {Φ : PUnit → sProp 𝕄} :
    iprop((K (F := F)).ctx EH (P m) κ ∗ (K (F := F)).tcSt EH d qK.val ∗ held (SparseCore.T d) (tcRefs τ sig) V
        ∗ (((K (F := F)).tcSt EH d (qK.val + 1) ∗ held (SparseCore.T d) (tcRefs τ sig) ((opC m d).result V)) -∗ Φ ⟨⟩))
      ⊢ wp frame (wpE ((K (F := F)).defs (D (F := F))) 𝒱 (SparseCore.T d) none) Set.univ ((K (F := F)).run d qK) Φ := by
  rw [held_sub_split (SparseCore.T d) pair_sub V, held_pair, hV]
  iintro ⟨#Hctx, Hst, ⟨⟨Hx, Ho⟩, Hrest⟩, Hk⟩
  ihave Hx' := (pointsTo_split_subset (q := fullShare) (f := xt m d) (Finset.subset_univ (Pieces.rowSet qK.val : Finset (Idx (ℓx d))))).1 $$ Hx
  icases Hx' with ⟨Hrow, Hxrest⟩
  iapply ((K (F := F)).wp_run (D (F := F)) 𝒱 (EH := EH) (P := P m) κ d qK) $$ [Hst Hrow Ho Hk Hxrest Hrest]
  isplitr; · iexact Hctx
  isplitl [Hst]; · iexact Hst
  isplitl [Hrow Ho]
  · rw [st_eq]
    isplitl [Hrow]
    · iapply (Entails.of_eq (x_pieces d (xt m d))); iexact Hrow
    · iapply (o_pieces_ex d (V vo')); iexact Ho
  iintro ⟨Hst, Hdn⟩
  ihave Hdn' := (Entails.of_eq (dn_eq m d)) $$ Hdn
  icases Hdn' with ⟨Hrow, Ho⟩
  ihave Hrow' := (Entails.of_eq (x_pieces d (xt m d)).symm) $$ Hrow
  ihave Ho' := (Entails.of_eq (o_pieces_row d (xt m d))) $$ Ho
  ihave Hx := (pointsTo_split_subset (q := fullShare) (f := xt m d) (Finset.subset_univ (Pieces.rowSet qK.val : Finset (Idx (ℓx d))))).2 $$ [Hrow' Hxrest]
  · isplitl [Hrow']; · iexact Hrow'
    iexact Hxrest
  iapply Hk
  isplitl [Hst]; · iexact Hst
  rw [held_sub_split (SparseCore.T d) pair_sub ((opC m d).result V), held_pair,
    StableHlo.nullary_result_ne _ _ _ V (show (main_v0 : Ref sig .tc) ≠ main_v5 by decide), StableHlo.nullary_result, hV,
    held_congr (SparseCore.T d) (V := (opC m d).result V) (V' := V)
      (fun b hb => (opC m d).result_of_not_mem V (fun hw => (Finset.mem_sdiff.mp hb).2
        (Finset.mem_insert_of_mem (Finset.mem_singleton.mpr (Finset.mem_singleton.mp hw)))))]
  isplitl [Hx Ho']
  · isplitl [Hx]; · iexact Hx
    iexact Ho'
  · iexact Hrest

end Cert.Proof.CallK4

end
-- ==== Proof.CallPieces5.lean ====
/-
  The pieces of one call: row q of the transposed argument, held at some contents, is the 32 vector subcores' pieces of
  it; result q, held whole at some contents, is their pieces of it.
-/
import proofs.«206869_g37898791420194_cont_8to1_b_558_20_alg».proof.Proof.TileK5Defs
import proofs.«206869_g37898791420194_cont_8to1_b_558_20_alg».proof.Proof.LaunchPieces

noncomputable section

namespace Cert.Proof.CallK5

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic
open Cert.Proof.Pieces (crd)

variable {F : FTy → Type}

abbrev UU : Type := URounds (GSem nD τ sig) ℕ × Counters
local notation "𝕄" => MT nD τ sig (HIx 22) (Elt F) ℕ UU ℕ

/-- The call's number. -/
abbrev qK : Fin 22 := 5
theorem hq : qK.val < 22 := qK.isLt

abbrev vx' : DevRef τ sig := Proc.devRef .tc (main_v0 : Ref sig .tc)
abbrev vo' : DevRef τ sig := Proc.devRef .tc (main_v6 : Ref sig .tc)
abbrev ℓx (d : Dev nD) : Loc nD τ sig := (SparseCore.T d).loc main_v0
abbrev ℓo (d : Dev nD) : Loc nD τ sig := (SparseCore.T d).loc main_v6

variable [FloatOps F]

/-- Row q of the transposed argument, held at contents f, is the tasks' pieces of it. -/
theorem x_pieces (d : Dev nD) (f : Buf (Elt F) (ℓx d)) :
    (ℓx d ↦[(Pieces.rowSet qK.val : Finset (Idx (ℓx d)))]{fullShare} f : sProp 𝕄)
      = bigSep Finset.univ fun c : Fin 2 => bigSep Finset.univ fun s : Fin 16 => bigSep (Finset.range 18) (TileK5.xP d (crd c s) f) := by
  rw [← Pieces.in_cover qK.val hq, pointsTo_biUnion _ _ (Pieces.in_disj qK.val hq), Pieces.bigSep_tris]
  refine bigSep_congr fun c _ => bigSep_congr fun s _ => bigSep_congr fun n _ => ?_
  unfold TileK5.xP
  by_cases h : TileK5.valid (crd c s) n
  · rw [if_pos h, if_pos (show Pieces.pnum (c, s, n) < 500 from (TileK5.valid_iff _ _).mp h)]
    show _ = ((TileK5.inM (crd c s) n).view.loc (TileK5.thr d (crd c s)) ↦[(TileK5.inM (crd c s) n).view.set]{fullShare} f)
    rw [show (TileK5.inM (crd c s) n).view.set = Pieces.inSet qK.val hq (c, s, n) from View.set_slice_whole _ _]
  · rw [if_neg h, if_neg (show ¬ Pieces.pnum (c, s, n) < 500 from fun h' => h ((TileK5.valid_iff _ _).mpr h'))]
    rfl

/-- Result q, held whole at contents g, is the tasks' pieces of it at g. -/
theorem o_pieces (d : Dev nD) (g : Buf (Elt F) (ℓo d)) :
    (ℓo d ↦{fullShare} g : sProp 𝕄)
      = bigSep Finset.univ fun c : Fin 2 => bigSep Finset.univ fun s : Fin 16 => bigSep (Finset.range 18) fun n =>
          if TileK5.valid (crd c s) n then
            ((TileK5.outM (crd c s) n).view.loc (TileK5.thr d (crd c s)) ↦[(TileK5.outM (crd c s) n).view.set]{fullShare} g : sProp 𝕄)
          else iprop(emp) := by
  show (ℓo d ↦[(Finset.univ : Finset (Idx (ℓo d)))]{fullShare} g : sProp 𝕄) = _
  rw [← Pieces.out_cover, pointsTo_biUnion _ _ Pieces.out_disj, Pieces.bigSep_tris]
  refine bigSep_congr fun c _ => bigSep_congr fun s _ => bigSep_congr fun n _ => ?_
  by_cases h : TileK5.valid (crd c s) n
  · rw [if_pos h, if_pos (show Pieces.pnum (c, s, n) < 500 from (TileK5.valid_iff _ _).mp h)]
    rw [show (TileK5.outM (crd c s) n).view.set = Pieces.outSet (c, s, n) from View.set_slice_whole _ _]
  · rw [if_neg h, if_neg (show ¬ Pieces.pnum (c, s, n) < 500 from fun h' => h ((TileK5.valid_iff _ _).mpr h'))]
    rfl

end Cert.Proof.CallK5

end
-- ==== Proof.LaunchStep5.lean ====
/-
  One call of a copy kernel, run from the TensorCore: from the TensorCore's buffers held at a valuation whose transposed
  argument is the transpose, the call leaves them at the same valuation but for result q, which holds row q.
-/
import proofs.«206869_g37898791420194_cont_8to1_b_558_20_alg».proof.Proof.LaunchP
import proofs.«206869_g37898791420194_cont_8to1_b_558_20_alg».proof.Proof.CallPieces5

noncomputable section

namespace Cert.Proof.CallK5

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic
open Idealize.ShloMosaic.StableHlo (tcRefs devRef_mem_tcRefs held_sub_split held_congr)
open Cert.Proof.Pieces (crd)
open Cert.Proof.LaunchKI (K D 𝒱 𝒱₀ v₀ EH P xt)

variable {F : FTy → Type}

local notation "𝕄" => MT nD τ sig (HIx 22) (Elt F) ℕ UU ℕ

variable (m : (ℓ : Loc nD τ sig) → Buf (Elt F) ℓ)
variable [FloatOps F]

/-- Result q held whole at some contents gives every task its pieces of it, each at some contents. -/
theorem o_pieces_ex (d : Dev nD) (g : Buf (Elt F) (ℓo d)) :
    (ℓo d ↦{fullShare} g : sProp 𝕄)
      ⊢ bigSep Finset.univ fun c : Fin 2 => bigSep Finset.univ fun s : Fin 16 => bigSep (Finset.range 18) (TileK5.oP (F := F) d (crd c s)) := by
  rw [o_pieces d g]
  refine bigSep_mono fun c _ => bigSep_mono fun s _ => bigSep_mono fun n _ => ?_
  unfold TileK5.oP
  by_cases h : TileK5.valid (crd c s) n
  · rw [if_pos h, if_pos h]
    exact exists_intro (Φ := fun f => (((TileK5.outM (crd c s) n).view.loc (TileK5.thr d (crd c s)) ↦[(TileK5.outM (crd c s) n).view.set]{fullShare} f : sProp 𝕄))) g
  · rw [if_neg h, if_neg h]; exact BI.Entails.refl _

/-- The tasks' pieces of result q, each holding row q of f, are result q whole holding that row. -/
theorem o_pieces_row (d : Dev nD) (f : Buf (Elt F) (ℓx d)) :
    (bigSep Finset.univ fun c : Fin 2 => bigSep Finset.univ fun s : Fin 16 => bigSep (Finset.range 18) (TileK5.oQ d (crd c s) f))
      = (ℓo d ↦{fullShare} (Cert.Spec.row qK f : Buf (Elt F) (ℓo d)) : sProp 𝕄) := by
  rw [o_pieces d (Cert.Spec.row qK f : Buf (Elt F) (ℓo d))]
  rfl

omit [FloatOps F] in
/-- A separating conjunction over the call's grid of vector subcores, or of SparseCores, is one over sixteen, or two. -/
theorem bigSep_castSub (Φ : Fin 16 → sProp 𝕄) :
    (bigSep Finset.univ fun i : Fin ((K (F := F)).nSub qK) => Φ (i.cast (LaunchKI.nSub_eq qK))) = bigSep Finset.univ Φ :=
  bigSep_congr fun _ _ => congrArg Φ (Fin.ext rfl)
omit [FloatOps F] in
theorem bigSep_castCore (Φ : Fin 2 → sProp 𝕄) :
    (bigSep Finset.univ fun c : Fin ((K (F := F)).nCore qK) => Φ (c.cast (LaunchKI.nCore_eq qK))) = bigSep Finset.univ Φ :=
  bigSep_congr fun _ _ => congrArg Φ (Fin.ext rfl)

theorem goQ_eq (d : Dev nD) (c : Fin 2) (s : Fin 16) : LaunchKI.goQ m qK d c s = TileK5.goRes d (crd c s) (xt m d) := rfl
theorem tdQ_eq (d : Dev nD) (c : Fin 2) (s : Fin 16) : LaunchKI.tdQ m qK d c s = TileK5.tdRes d (crd c s) (xt m d) := rfl

/-- What the call takes for the two SparseCores: every task's pieces. -/
theorem st_eq (d : Dev nD) :
    (bigSep Finset.univ fun c : Fin ((K (F := F)).nCore qK) => (P m).st qK d c)
      = iprop((bigSep Finset.univ fun c : Fin 2 => bigSep Finset.univ fun s : Fin 16 => bigSep (Finset.range 18) (TileK5.xP d (crd c s) (xt m d)))
          ∗ (bigSep Finset.univ fun c : Fin 2 => bigSep Finset.univ fun s : Fin 16 => bigSep (Finset.range 18) (TileK5.oP (F := F) d (crd c s)))) := by
  have h1 : (bigSep Finset.univ fun c : Fin ((K (F := F)).nCore qK) => (P m).st qK d c)
      = bigSep Finset.univ fun c : Fin ((K (F := F)).nCore qK) =>
          (fun c' : Fin 2 => bigSep (Finset.univ : Finset (Fin 16)) fun s => LaunchKI.goQ m qK d c' s) (c.cast (LaunchKI.nCore_eq qK)) :=
    bigSep_congr fun c _ => bigSep_castSub (fun s => LaunchKI.goQ m qK d (c.cast (LaunchKI.nCore_eq qK)) s)
  rw [h1, bigSep_castCore (fun c' : Fin 2 => bigSep (Finset.univ : Finset (Fin 16)) fun s => LaunchKI.goQ m qK d c' s), ← bigSep_sep']
  refine bigSep_congr fun c _ => ?_
  rw [← bigSep_sep']
  refine bigSep_congr fun s _ => ?_
  rw [goQ_eq]; rfl

/-- What it hands back. -/
theorem dn_eq (d : Dev nD) :
    (bigSep Finset.univ fun c : Fin ((K (F := F)).nCore qK) => (P m).dn qK d c)
      = iprop((bigSep Finset.univ fun c : Fin 2 => bigSep Finset.univ fun s : Fin 16 => bigSep (Finset.range 18) (TileK5.xP d (crd c s) (xt m d)))
          ∗ (bigSep Finset.univ fun c : Fin 2 => bigSep Finset.univ fun s : Fin 16 => bigSep (Finset.range 18) (TileK5.oQ d (crd c s) (xt m d)))) := by
  have h1 : (bigSep Finset.univ fun c : Fin ((K (F := F)).nCore qK) => (P m).dn qK d c)
      = bigSep Finset.univ fun c : Fin ((K (F := F)).nCore qK) =>
          (fun c' : Fin 2 => bigSep (Finset.univ : Finset (Fin 16)) fun s => LaunchKI.tdQ m qK d c' s) (c.cast (LaunchKI.nCore_eq qK)) :=
    bigSep_congr fun c _ => bigSep_castSub (fun s => LaunchKI.tdQ m qK d (c.cast (LaunchKI.nCore_eq qK)) s)
  rw [h1, bigSep_castCore (fun c' : Fin 2 => bigSep (Finset.univ : Finset (Fin 16)) fun s => LaunchKI.tdQ m qK d c' s), ← bigSep_sep']
  refine bigSep_congr fun c _ => ?_
  rw [← bigSep_sep']
  refine bigSep_congr fun s _ => ?_
  rw [tdQ_eq]; rfl

omit [FloatOps F] in
theorem pair_sub : ({vx', vo'} : Finset (DevRef τ sig)) ⊆ tcRefs τ sig :=
  Finset.insert_subset (devRef_mem_tcRefs _) (Finset.singleton_subset_iff.mpr (devRef_mem_tcRefs _))

omit [FloatOps F] in
theorem held_pair (d : Dev nD) (V : Valuation τ sig (Elt F)) :
    (held (SparseCore.T d) ({vx', vo'} : Finset (DevRef τ sig)) V : sProp 𝕄) = iprop((ℓx d ↦{fullShare} V vx') ∗ (ℓo d ↦{fullShare} V vo')) := by
  unfold held; rw [SparseCore.bigSep_insert' (by decide), bigSep_singleton]

/-- What the call does to the TensorCore's buffers, as an operation on valuations: result q takes row q of the transpose. -/
abbrev opC (d : Dev nD) : HloOp τ sig (Elt F) := StableHlo.nullary main_v6 (Cert.Spec.row qK (xt m d))

/-- The call, from the TensorCore's buffers held at a valuation V whose transposed argument is the transpose: it
    leaves them at V but for result q, which holds row q of the transpose. -/
theorem step (κ : GSem nD τ sig → ℕ) (d : Dev nD) (V : Valuation τ sig (Elt F)) (hV : V vx' = xt m d) {Φ : PUnit → sProp 𝕄} :
    iprop((K (F := F)).ctx EH (P m) κ ∗ (K (F := F)).tcSt EH d qK.val ∗ held (SparseCore.T d) (tcRefs τ sig) V
        ∗ (((K (F := F)).tcSt EH d (qK.val + 1) ∗ held (SparseCore.T d) (tcRefs τ sig) ((opC m d).result V)) -∗ Φ ⟨⟩))
      ⊢ wp frame (wpE ((K (F := F)).defs (D (F := F))) 𝒱 (SparseCore.T d) none) Set.univ ((K (F := F)).run d qK) Φ := by
  rw [held_sub_split (SparseCore.T d) pair_sub V, held_pair, hV]
  iintro ⟨#Hctx, Hst, ⟨⟨Hx, Ho⟩, Hrest⟩, Hk⟩
  ihave Hx' := (pointsTo_split_subset (q := fullShare) (f := xt m d) (Finset.subset_univ (Pieces.rowSet qK.val : Finset (Idx (ℓx d))))).1 $$ Hx
  icases Hx' with ⟨Hrow, Hxrest⟩
  iapply ((K (F := F)).wp_run (D (F := F)) 𝒱 (EH := EH) (P := P m) κ d qK) $$ [Hst Hrow Ho Hk Hxrest Hrest]
  isplitr; · iexact Hctx
  isplitl [Hst]; · iexact Hst
  isplitl [Hrow Ho]
  · rw [st_eq]
    isplitl [Hrow]
    · iapply (Entails.of_eq (x_pieces d (xt m d))); iexact Hrow
    · iapply (o_pieces_ex d (V vo')); iexact Ho
  iintro ⟨Hst, Hdn⟩
  ihave Hdn' := (Entails.of_eq (dn_eq m d)) $$ Hdn
  icases Hdn' with ⟨Hrow, Ho⟩
  ihave Hrow' := (Entails.of_eq (x_pieces d (xt m d)).symm) $$ Hrow
  ihave Ho' := (Entails.of_eq (o_pieces_row d (xt m d))) $$ Ho
  ihave Hx := (pointsTo_split_subset (q := fullShare) (f := xt m d) (Finset.subset_univ (Pieces.rowSet qK.val : Finset (Idx (ℓx d))))).2 $$ [Hrow' Hxrest]
  · isplitl [Hrow']; · iexact Hrow'
    iexact Hxrest
  iapply Hk
  isplitl [Hst]; · iexact Hst
  rw [held_sub_split (SparseCore.T d) pair_sub ((opC m d).result V), held_pair,
    StableHlo.nullary_result_ne _ _ _ V (show (main_v0 : Ref sig .tc) ≠ main_v6 by decide), StableHlo.nullary_result, hV,
    held_congr (SparseCore.T d) (V := (opC m d).result V) (V' := V)
      (fun b hb => (opC m d).result_of_not_mem V (fun hw => (Finset.mem_sdiff.mp hb).2
        (Finset.mem_insert_of_mem (Finset.mem_singleton.mpr (Finset.mem_singleton.mp hw)))))]
  isplitl [Hx Ho']
  · isplitl [Hx]; · iexact Hx
    iexact Ho'
  · iexact Hrest

end Cert.Proof.CallK5

end
-- ==== Proof.CallPieces6.lean ====
/-
  The pieces of one call: row q of the transposed argument, held at some contents, is the 32 vector subcores' pieces of
  it; result q, held whole at some contents, is their pieces of it.
-/
import proofs.«206869_g37898791420194_cont_8to1_b_558_20_alg».proof.Proof.TileK6Defs
import proofs.«206869_g37898791420194_cont_8to1_b_558_20_alg».proof.Proof.LaunchPieces

noncomputable section

namespace Cert.Proof.CallK6

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic
open Cert.Proof.Pieces (crd)

variable {F : FTy → Type}

abbrev UU : Type := URounds (GSem nD τ sig) ℕ × Counters
local notation "𝕄" => MT nD τ sig (HIx 22) (Elt F) ℕ UU ℕ

/-- The call's number. -/
abbrev qK : Fin 22 := 6
theorem hq : qK.val < 22 := qK.isLt

abbrev vx' : DevRef τ sig := Proc.devRef .tc (main_v0 : Ref sig .tc)
abbrev vo' : DevRef τ sig := Proc.devRef .tc (main_v7 : Ref sig .tc)
abbrev ℓx (d : Dev nD) : Loc nD τ sig := (SparseCore.T d).loc main_v0
abbrev ℓo (d : Dev nD) : Loc nD τ sig := (SparseCore.T d).loc main_v7

variable [FloatOps F]

/-- Row q of the transposed argument, held at contents f, is the tasks' pieces of it. -/
theorem x_pieces (d : Dev nD) (f : Buf (Elt F) (ℓx d)) :
    (ℓx d ↦[(Pieces.rowSet qK.val : Finset (Idx (ℓx d)))]{fullShare} f : sProp 𝕄)
      = bigSep Finset.univ fun c : Fin 2 => bigSep Finset.univ fun s : Fin 16 => bigSep (Finset.range 18) (TileK6.xP d (crd c s) f) := by
  rw [← Pieces.in_cover qK.val hq, pointsTo_biUnion _ _ (Pieces.in_disj qK.val hq), Pieces.bigSep_tris]
  refine bigSep_congr fun c _ => bigSep_congr fun s _ => bigSep_congr fun n _ => ?_
  unfold TileK6.xP
  by_cases h : TileK6.valid (crd c s) n
  · rw [if_pos h, if_pos (show Pieces.pnum (c, s, n) < 500 from (TileK6.valid_iff _ _).mp h)]
    show _ = ((TileK6.inM (crd c s) n).view.loc (TileK6.thr d (crd c s)) ↦[(TileK6.inM (crd c s) n).view.set]{fullShare} f)
    rw [show (TileK6.inM (crd c s) n).view.set = Pieces.inSet qK.val hq (c, s, n) from View.set_slice_whole _ _]
  · rw [if_neg h, if_neg (show ¬ Pieces.pnum (c, s, n) < 500 from fun h' => h ((TileK6.valid_iff _ _).mpr h'))]
    rfl

/-- Result q, held whole at contents g, is the tasks' pieces of it at g. -/
theorem o_pieces (d : Dev nD) (g : Buf (Elt F) (ℓo d)) :
    (ℓo d ↦{fullShare} g : sProp 𝕄)
      = bigSep Finset.univ fun c : Fin 2 => bigSep Finset.univ fun s : Fin 16 => bigSep (Finset.range 18) fun n =>
          if TileK6.valid (crd c s) n then
            ((TileK6.outM (crd c s) n).view.loc (TileK6.thr d (crd c s)) ↦[(TileK6.outM (crd c s) n).view.set]{fullShare} g : sProp 𝕄)
          else iprop(emp) := by
  show (ℓo d ↦[(Finset.univ : Finset (Idx (ℓo d)))]{fullShare} g : sProp 𝕄) = _
  rw [← Pieces.out_cover, pointsTo_biUnion _ _ Pieces.out_disj, Pieces.bigSep_tris]
  refine bigSep_congr fun c _ => bigSep_congr fun s _ => bigSep_congr fun n _ => ?_
  by_cases h : TileK6.valid (crd c s) n
  · rw [if_pos h, if_pos (show Pieces.pnum (c, s, n) < 500 from (TileK6.valid_iff _ _).mp h)]
    rw [show (TileK6.outM (crd c s) n).view.set = Pieces.outSet (c, s, n) from View.set_slice_whole _ _]
  · rw [if_neg h, if_neg (show ¬ Pieces.pnum (c, s, n) < 500 from fun h' => h ((TileK6.valid_iff _ _).mpr h'))]
    rfl

end Cert.Proof.CallK6

end
-- ==== Proof.LaunchStep6.lean ====
/-
  One call of a copy kernel, run from the TensorCore: from the TensorCore's buffers held at a valuation whose transposed
  argument is the transpose, the call leaves them at the same valuation but for result q, which holds row q.
-/
import proofs.«206869_g37898791420194_cont_8to1_b_558_20_alg».proof.Proof.LaunchP
import proofs.«206869_g37898791420194_cont_8to1_b_558_20_alg».proof.Proof.CallPieces6

noncomputable section

namespace Cert.Proof.CallK6

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic
open Idealize.ShloMosaic.StableHlo (tcRefs devRef_mem_tcRefs held_sub_split held_congr)
open Cert.Proof.Pieces (crd)
open Cert.Proof.LaunchKI (K D 𝒱 𝒱₀ v₀ EH P xt)

variable {F : FTy → Type}

local notation "𝕄" => MT nD τ sig (HIx 22) (Elt F) ℕ UU ℕ

variable (m : (ℓ : Loc nD τ sig) → Buf (Elt F) ℓ)
variable [FloatOps F]

/-- Result q held whole at some contents gives every task its pieces of it, each at some contents. -/
theorem o_pieces_ex (d : Dev nD) (g : Buf (Elt F) (ℓo d)) :
    (ℓo d ↦{fullShare} g : sProp 𝕄)
      ⊢ bigSep Finset.univ fun c : Fin 2 => bigSep Finset.univ fun s : Fin 16 => bigSep (Finset.range 18) (TileK6.oP (F := F) d (crd c s)) := by
  rw [o_pieces d g]
  refine bigSep_mono fun c _ => bigSep_mono fun s _ => bigSep_mono fun n _ => ?_
  unfold TileK6.oP
  by_cases h : TileK6.valid (crd c s) n
  · rw [if_pos h, if_pos h]
    exact exists_intro (Φ := fun f => (((TileK6.outM (crd c s) n).view.loc (TileK6.thr d (crd c s)) ↦[(TileK6.outM (crd c s) n).view.set]{fullShare} f : sProp 𝕄))) g
  · rw [if_neg h, if_neg h]; exact BI.Entails.refl _

/-- The tasks' pieces of result q, each holding row q of f, are result q whole holding that row. -/
theorem o_pieces_row (d : Dev nD) (f : Buf (Elt F) (ℓx d)) :
    (bigSep Finset.univ fun c : Fin 2 => bigSep Finset.univ fun s : Fin 16 => bigSep (Finset.range 18) (TileK6.oQ d (crd c s) f))
      = (ℓo d ↦{fullShare} (Cert.Spec.row qK f : Buf (Elt F) (ℓo d)) : sProp 𝕄) := by
  rw [o_pieces d (Cert.Spec.row qK f : Buf (Elt F) (ℓo d))]
  rfl

omit [FloatOps F] in
/-- A separating conjunction over the call's grid of vector subcores, or of SparseCores, is one over sixteen, or two. -/
theorem bigSep_castSub (Φ : Fin 16 → sProp 𝕄) :
    (bigSep Finset.univ fun i : Fin ((K (F := F)).nSub qK) => Φ (i.cast (LaunchKI.nSub_eq qK))) = bigSep Finset.univ Φ :=
  bigSep_congr fun _ _ => congrArg Φ (Fin.ext rfl)
omit [FloatOps F] in
theorem bigSep_castCore (Φ : Fin 2 → sProp 𝕄) :
    (bigSep Finset.univ fun c : Fin ((K (F := F)).nCore qK) => Φ (c.cast (LaunchKI.nCore_eq qK))) = bigSep Finset.univ Φ :=
  bigSep_congr fun _ _ => congrArg Φ (Fin.ext rfl)

theorem goQ_eq (d : Dev nD) (c : Fin 2) (s : Fin 16) : LaunchKI.goQ m qK d c s = TileK6.goRes d (crd c s) (xt m d) := rfl
theorem tdQ_eq (d : Dev nD) (c : Fin 2) (s : Fin 16) : LaunchKI.tdQ m qK d c s = TileK6.tdRes d (crd c s) (xt m d) := rfl

/-- What the call takes for the two SparseCores: every task's pieces. -/
theorem st_eq (d : Dev nD) :
    (bigSep Finset.univ fun c : Fin ((K (F := F)).nCore qK) => (P m).st qK d c)
      = iprop((bigSep Finset.univ fun c : Fin 2 => bigSep Finset.univ fun s : Fin 16 => bigSep (Finset.range 18) (TileK6.xP d (crd c s) (xt m d)))
          ∗ (bigSep Finset.univ fun c : Fin 2 => bigSep Finset.univ fun s : Fin 16 => bigSep (Finset.range 18) (TileK6.oP (F := F) d (crd c s)))) := by
  have h1 : (bigSep Finset.univ fun c : Fin ((K (F := F)).nCore qK) => (P m).st qK d c)
      = bigSep Finset.univ fun c : Fin ((K (F := F)).nCore qK) =>
          (fun c' : Fin 2 => bigSep (Finset.univ : Finset (Fin 16)) fun s => LaunchKI.goQ m qK d c' s) (c.cast (LaunchKI.nCore_eq qK)) :=
    bigSep_congr fun c _ => bigSep_castSub (fun s => LaunchKI.goQ m qK d (c.cast (LaunchKI.nCore_eq qK)) s)
  rw [h1, bigSep_castCore (fun c' : Fin 2 => bigSep (Finset.univ : Finset (Fin 16)) fun s => LaunchKI.goQ m qK d c' s), ← bigSep_sep']
  refine bigSep_congr fun c _ => ?_
  rw [← bigSep_sep']
  refine bigSep_congr fun s _ => ?_
  rw [goQ_eq]; rfl

/-- What it hands back. -/
theorem dn_eq (d : Dev nD) :
    (bigSep Finset.univ fun c : Fin ((K (F := F)).nCore qK) => (P m).dn qK d c)
      = iprop((bigSep Finset.univ fun c : Fin 2 => bigSep Finset.univ fun s : Fin 16 => bigSep (Finset.range 18) (TileK6.xP d (crd c s) (xt m d)))
          ∗ (bigSep Finset.univ fun c : Fin 2 => bigSep Finset.univ fun s : Fin 16 => bigSep (Finset.range 18) (TileK6.oQ d (crd c s) (xt m d)))) := by
  have h1 : (bigSep Finset.univ fun c : Fin ((K (F := F)).nCore qK) => (P m).dn qK d c)
      = bigSep Finset.univ fun c : Fin ((K (F := F)).nCore qK) =>
          (fun c' : Fin 2 => bigSep (Finset.univ : Finset (Fin 16)) fun s => LaunchKI.tdQ m qK d c' s) (c.cast (LaunchKI.nCore_eq qK)) :=
    bigSep_congr fun c _ => bigSep_castSub (fun s => LaunchKI.tdQ m qK d (c.cast (LaunchKI.nCore_eq qK)) s)
  rw [h1, bigSep_castCore (fun c' : Fin 2 => bigSep (Finset.univ : Finset (Fin 16)) fun s => LaunchKI.tdQ m qK d c' s), ← bigSep_sep']
  refine bigSep_congr fun c _ => ?_
  rw [← bigSep_sep']
  refine bigSep_congr fun s _ => ?_
  rw [tdQ_eq]; rfl

omit [FloatOps F] in
theorem pair_sub : ({vx', vo'} : Finset (DevRef τ sig)) ⊆ tcRefs τ sig :=
  Finset.insert_subset (devRef_mem_tcRefs _) (Finset.singleton_subset_iff.mpr (devRef_mem_tcRefs _))

omit [FloatOps F] in
theorem held_pair (d : Dev nD) (V : Valuation τ sig (Elt F)) :
    (held (SparseCore.T d) ({vx', vo'} : Finset (DevRef τ sig)) V : sProp 𝕄) = iprop((ℓx d ↦{fullShare} V vx') ∗ (ℓo d ↦{fullShare} V vo')) := by
  unfold held; rw [SparseCore.bigSep_insert' (by decide), bigSep_singleton]

/-- What the call does to the TensorCore's buffers, as an operation on valuations: result q takes row q of the transpose. -/
abbrev opC (d : Dev nD) : HloOp τ sig (Elt F) := StableHlo.nullary main_v7 (Cert.Spec.row qK (xt m d))

/-- The call, from the TensorCore's buffers held at a valuation V whose transposed argument is the transpose: it
    leaves them at V but for result q, which holds row q of the transpose. -/
theorem step (κ : GSem nD τ sig → ℕ) (d : Dev nD) (V : Valuation τ sig (Elt F)) (hV : V vx' = xt m d) {Φ : PUnit → sProp 𝕄} :
    iprop((K (F := F)).ctx EH (P m) κ ∗ (K (F := F)).tcSt EH d qK.val ∗ held (SparseCore.T d) (tcRefs τ sig) V
        ∗ (((K (F := F)).tcSt EH d (qK.val + 1) ∗ held (SparseCore.T d) (tcRefs τ sig) ((opC m d).result V)) -∗ Φ ⟨⟩))
      ⊢ wp frame (wpE ((K (F := F)).defs (D (F := F))) 𝒱 (SparseCore.T d) none) Set.univ ((K (F := F)).run d qK) Φ := by
  rw [held_sub_split (SparseCore.T d) pair_sub V, held_pair, hV]
  iintro ⟨#Hctx, Hst, ⟨⟨Hx, Ho⟩, Hrest⟩, Hk⟩
  ihave Hx' := (pointsTo_split_subset (q := fullShare) (f := xt m d) (Finset.subset_univ (Pieces.rowSet qK.val : Finset (Idx (ℓx d))))).1 $$ Hx
  icases Hx' with ⟨Hrow, Hxrest⟩
  iapply ((K (F := F)).wp_run (D (F := F)) 𝒱 (EH := EH) (P := P m) κ d qK) $$ [Hst Hrow Ho Hk Hxrest Hrest]
  isplitr; · iexact Hctx
  isplitl [Hst]; · iexact Hst
  isplitl [Hrow Ho]
  · rw [st_eq]
    isplitl [Hrow]
    · iapply (Entails.of_eq (x_pieces d (xt m d))); iexact Hrow
    · iapply (o_pieces_ex d (V vo')); iexact Ho
  iintro ⟨Hst, Hdn⟩
  ihave Hdn' := (Entails.of_eq (dn_eq m d)) $$ Hdn
  icases Hdn' with ⟨Hrow, Ho⟩
  ihave Hrow' := (Entails.of_eq (x_pieces d (xt m d)).symm) $$ Hrow
  ihave Ho' := (Entails.of_eq (o_pieces_row d (xt m d))) $$ Ho
  ihave Hx := (pointsTo_split_subset (q := fullShare) (f := xt m d) (Finset.subset_univ (Pieces.rowSet qK.val : Finset (Idx (ℓx d))))).2 $$ [Hrow' Hxrest]
  · isplitl [Hrow']; · iexact Hrow'
    iexact Hxrest
  iapply Hk
  isplitl [Hst]; · iexact Hst
  rw [held_sub_split (SparseCore.T d) pair_sub ((opC m d).result V), held_pair,
    StableHlo.nullary_result_ne _ _ _ V (show (main_v0 : Ref sig .tc) ≠ main_v7 by decide), StableHlo.nullary_result, hV,
    held_congr (SparseCore.T d) (V := (opC m d).result V) (V' := V)
      (fun b hb => (opC m d).result_of_not_mem V (fun hw => (Finset.mem_sdiff.mp hb).2
        (Finset.mem_insert_of_mem (Finset.mem_singleton.mpr (Finset.mem_singleton.mp hw)))))]
  isplitl [Hx Ho']
  · isplitl [Hx]; · iexact Hx
    iexact Ho'
  · iexact Hrest

end Cert.Proof.CallK6

end
-- ==== Proof.CallPieces7.lean ====
/-
  The pieces of one call: row q of the transposed argument, held at some contents, is the 32 vector subcores' pieces of
  it; result q, held whole at some contents, is their pieces of it.
-/
import proofs.«206869_g37898791420194_cont_8to1_b_558_20_alg».proof.Proof.TileK7Defs
import proofs.«206869_g37898791420194_cont_8to1_b_558_20_alg».proof.Proof.LaunchPieces

noncomputable section

namespace Cert.Proof.CallK7

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic
open Cert.Proof.Pieces (crd)

variable {F : FTy → Type}

abbrev UU : Type := URounds (GSem nD τ sig) ℕ × Counters
local notation "𝕄" => MT nD τ sig (HIx 22) (Elt F) ℕ UU ℕ

/-- The call's number. -/
abbrev qK : Fin 22 := 7
theorem hq : qK.val < 22 := qK.isLt

abbrev vx' : DevRef τ sig := Proc.devRef .tc (main_v0 : Ref sig .tc)
abbrev vo' : DevRef τ sig := Proc.devRef .tc (main_v8 : Ref sig .tc)
abbrev ℓx (d : Dev nD) : Loc nD τ sig := (SparseCore.T d).loc main_v0
abbrev ℓo (d : Dev nD) : Loc nD τ sig := (SparseCore.T d).loc main_v8

variable [FloatOps F]

/-- Row q of the transposed argument, held at contents f, is the tasks' pieces of it. -/
theorem x_pieces (d : Dev nD) (f : Buf (Elt F) (ℓx d)) :
    (ℓx d ↦[(Pieces.rowSet qK.val : Finset (Idx (ℓx d)))]{fullShare} f : sProp 𝕄)
      = bigSep Finset.univ fun c : Fin 2 => bigSep Finset.univ fun s : Fin 16 => bigSep (Finset.range 18) (TileK7.xP d (crd c s) f) := by
  rw [← Pieces.in_cover qK.val hq, pointsTo_biUnion _ _ (Pieces.in_disj qK.val hq), Pieces.bigSep_tris]
  refine bigSep_congr fun c _ => bigSep_congr fun s _ => bigSep_congr fun n _ => ?_
  unfold TileK7.xP
  by_cases h : TileK7.valid (crd c s) n
  · rw [if_pos h, if_pos (show Pieces.pnum (c, s, n) < 500 from (TileK7.valid_iff _ _).mp h)]
    show _ = ((TileK7.inM (crd c s) n).view.loc (TileK7.thr d (crd c s)) ↦[(TileK7.inM (crd c s) n).view.set]{fullShare} f)
    rw [show (TileK7.inM (crd c s) n).view.set = Pieces.inSet qK.val hq (c, s, n) from View.set_slice_whole _ _]
  · rw [if_neg h, if_neg (show ¬ Pieces.pnum (c, s, n) < 500 from fun h' => h ((TileK7.valid_iff _ _).mpr h'))]
    rfl

/-- Result q, held whole at contents g, is the tasks' pieces of it at g. -/
theorem o_pieces (d : Dev nD) (g : Buf (Elt F) (ℓo d)) :
    (ℓo d ↦{fullShare} g : sProp 𝕄)
      = bigSep Finset.univ fun c : Fin 2 => bigSep Finset.univ fun s : Fin 16 => bigSep (Finset.range 18) fun n =>
          if TileK7.valid (crd c s) n then
            ((TileK7.outM (crd c s) n).view.loc (TileK7.thr d (crd c s)) ↦[(TileK7.outM (crd c s) n).view.set]{fullShare} g : sProp 𝕄)
          else iprop(emp) := by
  show (ℓo d ↦[(Finset.univ : Finset (Idx (ℓo d)))]{fullShare} g : sProp 𝕄) = _
  rw [← Pieces.out_cover, pointsTo_biUnion _ _ Pieces.out_disj, Pieces.bigSep_tris]
  refine bigSep_congr fun c _ => bigSep_congr fun s _ => bigSep_congr fun n _ => ?_
  by_cases h : TileK7.valid (crd c s) n
  · rw [if_pos h, if_pos (show Pieces.pnum (c, s, n) < 500 from (TileK7.valid_iff _ _).mp h)]
    rw [show (TileK7.outM (crd c s) n).view.set = Pieces.outSet (c, s, n) from View.set_slice_whole _ _]
  · rw [if_neg h, if_neg (show ¬ Pieces.pnum (c, s, n) < 500 from fun h' => h ((TileK7.valid_iff _ _).mpr h'))]
    rfl

end Cert.Proof.CallK7

end
-- ==== Proof.LaunchStep7.lean ====
/-
  One call of a copy kernel, run from the TensorCore: from the TensorCore's buffers held at a valuation whose transposed
  argument is the transpose, the call leaves them at the same valuation but for result q, which holds row q.
-/
import proofs.«206869_g37898791420194_cont_8to1_b_558_20_alg».proof.Proof.LaunchP
import proofs.«206869_g37898791420194_cont_8to1_b_558_20_alg».proof.Proof.CallPieces7

noncomputable section

namespace Cert.Proof.CallK7

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic
open Idealize.ShloMosaic.StableHlo (tcRefs devRef_mem_tcRefs held_sub_split held_congr)
open Cert.Proof.Pieces (crd)
open Cert.Proof.LaunchKI (K D 𝒱 𝒱₀ v₀ EH P xt)

variable {F : FTy → Type}

local notation "𝕄" => MT nD τ sig (HIx 22) (Elt F) ℕ UU ℕ

variable (m : (ℓ : Loc nD τ sig) → Buf (Elt F) ℓ)
variable [FloatOps F]

/-- Result q held whole at some contents gives every task its pieces of it, each at some contents. -/
theorem o_pieces_ex (d : Dev nD) (g : Buf (Elt F) (ℓo d)) :
    (ℓo d ↦{fullShare} g : sProp 𝕄)
      ⊢ bigSep Finset.univ fun c : Fin 2 => bigSep Finset.univ fun s : Fin 16 => bigSep (Finset.range 18) (TileK7.oP (F := F) d (crd c s)) := by
  rw [o_pieces d g]
  refine bigSep_mono fun c _ => bigSep_mono fun s _ => bigSep_mono fun n _ => ?_
  unfold TileK7.oP
  by_cases h : TileK7.valid (crd c s) n
  · rw [if_pos h, if_pos h]
    exact exists_intro (Φ := fun f => (((TileK7.outM (crd c s) n).view.loc (TileK7.thr d (crd c s)) ↦[(TileK7.outM (crd c s) n).view.set]{fullShare} f : sProp 𝕄))) g
  · rw [if_neg h, if_neg h]; exact BI.Entails.refl _

/-- The tasks' pieces of result q, each holding row q of f, are result q whole holding that row. -/
theorem o_pieces_row (d : Dev nD) (f : Buf (Elt F) (ℓx d)) :
    (bigSep Finset.univ fun c : Fin 2 => bigSep Finset.univ fun s : Fin 16 => bigSep (Finset.range 18) (TileK7.oQ d (crd c s) f))
      = (ℓo d ↦{fullShare} (Cert.Spec.row qK f : Buf (Elt F) (ℓo d)) : sProp 𝕄) := by
  rw [o_pieces d (Cert.Spec.row qK f : Buf (Elt F) (ℓo d))]
  rfl

omit [FloatOps F] in
/-- A separating conjunction over the call's grid of vector subcores, or of SparseCores, is one over sixteen, or two. -/
theorem bigSep_castSub (Φ : Fin 16 → sProp 𝕄) :
    (bigSep Finset.univ fun i : Fin ((K (F := F)).nSub qK) => Φ (i.cast (LaunchKI.nSub_eq qK))) = bigSep Finset.univ Φ :=
  bigSep_congr fun _ _ => congrArg Φ (Fin.ext rfl)
omit [FloatOps F] in
theorem bigSep_castCore (Φ : Fin 2 → sProp 𝕄) :
    (bigSep Finset.univ fun c : Fin ((K (F := F)).nCore qK) => Φ (c.cast (LaunchKI.nCore_eq qK))) = bigSep Finset.univ Φ :=
  bigSep_congr fun _ _ => congrArg Φ (Fin.ext rfl)

theorem goQ_eq (d : Dev nD) (c : Fin 2) (s : Fin 16) : LaunchKI.goQ m qK d c s = TileK7.goRes d (crd c s) (xt m d) := rfl
theorem tdQ_eq (d : Dev nD) (c : Fin 2) (s : Fin 16) : LaunchKI.tdQ m qK d c s = TileK7.tdRes d (crd c s) (xt m d) := rfl

/-- What the call takes for the two SparseCores: every task's pieces. -/
theorem st_eq (d : Dev nD) :
    (bigSep Finset.univ fun c : Fin ((K (F := F)).nCore qK) => (P m).st qK d c)
      = iprop((bigSep Finset.univ fun c : Fin 2 => bigSep Finset.univ fun s : Fin 16 => bigSep (Finset.range 18) (TileK7.xP d (crd c s) (xt m d)))
          ∗ (bigSep Finset.univ fun c : Fin 2 => bigSep Finset.univ fun s : Fin 16 => bigSep (Finset.range 18) (TileK7.oP (F := F) d (crd c s)))) := by
  have h1 : (bigSep Finset.univ fun c : Fin ((K (F := F)).nCore qK) => (P m).st qK d c)
      = bigSep Finset.univ fun c : Fin ((K (F := F)).nCore qK) =>
          (fun c' : Fin 2 => bigSep (Finset.univ : Finset (Fin 16)) fun s => LaunchKI.goQ m qK d c' s) (c.cast (LaunchKI.nCore_eq qK)) :=
    bigSep_congr fun c _ => bigSep_castSub (fun s => LaunchKI.goQ m qK d (c.cast (LaunchKI.nCore_eq qK)) s)
  rw [h1, bigSep_castCore (fun c' : Fin 2 => bigSep (Finset.univ : Finset (Fin 16)) fun s => LaunchKI.goQ m qK d c' s), ← bigSep_sep']
  refine bigSep_congr fun c _ => ?_
  rw [← bigSep_sep']
  refine bigSep_congr fun s _ => ?_
  rw [goQ_eq]; rfl

/-- What it hands back. -/
theorem dn_eq (d : Dev nD) :
    (bigSep Finset.univ fun c : Fin ((K (F := F)).nCore qK) => (P m).dn qK d c)
      = iprop((bigSep Finset.univ fun c : Fin 2 => bigSep Finset.univ fun s : Fin 16 => bigSep (Finset.range 18) (TileK7.xP d (crd c s) (xt m d)))
          ∗ (bigSep Finset.univ fun c : Fin 2 => bigSep Finset.univ fun s : Fin 16 => bigSep (Finset.range 18) (TileK7.oQ d (crd c s) (xt m d)))) := by
  have h1 : (bigSep Finset.univ fun c : Fin ((K (F := F)).nCore qK) => (P m).dn qK d c)
      = bigSep Finset.univ fun c : Fin ((K (F := F)).nCore qK) =>
          (fun c' : Fin 2 => bigSep (Finset.univ : Finset (Fin 16)) fun s => LaunchKI.tdQ m qK d c' s) (c.cast (LaunchKI.nCore_eq qK)) :=
    bigSep_congr fun c _ => bigSep_castSub (fun s => LaunchKI.tdQ m qK d (c.cast (LaunchKI.nCore_eq qK)) s)
  rw [h1, bigSep_castCore (fun c' : Fin 2 => bigSep (Finset.univ : Finset (Fin 16)) fun s => LaunchKI.tdQ m qK d c' s), ← bigSep_sep']
  refine bigSep_congr fun c _ => ?_
  rw [← bigSep_sep']
  refine bigSep_congr fun s _ => ?_
  rw [tdQ_eq]; rfl

omit [FloatOps F] in
theorem pair_sub : ({vx', vo'} : Finset (DevRef τ sig)) ⊆ tcRefs τ sig :=
  Finset.insert_subset (devRef_mem_tcRefs _) (Finset.singleton_subset_iff.mpr (devRef_mem_tcRefs _))

omit [FloatOps F] in
theorem held_pair (d : Dev nD) (V : Valuation τ sig (Elt F)) :
    (held (SparseCore.T d) ({vx', vo'} : Finset (DevRef τ sig)) V : sProp 𝕄) = iprop((ℓx d ↦{fullShare} V vx') ∗ (ℓo d ↦{fullShare} V vo')) := by
  unfold held; rw [SparseCore.bigSep_insert' (by decide), bigSep_singleton]

/-- What the call does to the TensorCore's buffers, as an operation on valuations: result q takes row q of the transpose. -/
abbrev opC (d : Dev nD) : HloOp τ sig (Elt F) := StableHlo.nullary main_v8 (Cert.Spec.row qK (xt m d))

/-- The call, from the TensorCore's buffers held at a valuation V whose transposed argument is the transpose: it
    leaves them at V but for result q, which holds row q of the transpose. -/
theorem step (κ : GSem nD τ sig → ℕ) (d : Dev nD) (V : Valuation τ sig (Elt F)) (hV : V vx' = xt m d) {Φ : PUnit → sProp 𝕄} :
    iprop((K (F := F)).ctx EH (P m) κ ∗ (K (F := F)).tcSt EH d qK.val ∗ held (SparseCore.T d) (tcRefs τ sig) V
        ∗ (((K (F := F)).tcSt EH d (qK.val + 1) ∗ held (SparseCore.T d) (tcRefs τ sig) ((opC m d).result V)) -∗ Φ ⟨⟩))
      ⊢ wp frame (wpE ((K (F := F)).defs (D (F := F))) 𝒱 (SparseCore.T d) none) Set.univ ((K (F := F)).run d qK) Φ := by
  rw [held_sub_split (SparseCore.T d) pair_sub V, held_pair, hV]
  iintro ⟨#Hctx, Hst, ⟨⟨Hx, Ho⟩, Hrest⟩, Hk⟩
  ihave Hx' := (pointsTo_split_subset (q := fullShare) (f := xt m d) (Finset.subset_univ (Pieces.rowSet qK.val : Finset (Idx (ℓx d))))).1 $$ Hx
  icases Hx' with ⟨Hrow, Hxrest⟩
  iapply ((K (F := F)).wp_run (D (F := F)) 𝒱 (EH := EH) (P := P m) κ d qK) $$ [Hst Hrow Ho Hk Hxrest Hrest]
  isplitr; · iexact Hctx
  isplitl [Hst]; · iexact Hst
  isplitl [Hrow Ho]
  · rw [st_eq]
    isplitl [Hrow]
    · iapply (Entails.of_eq (x_pieces d (xt m d))); iexact Hrow
    · iapply (o_pieces_ex d (V vo')); iexact Ho
  iintro ⟨Hst, Hdn⟩
  ihave Hdn' := (Entails.of_eq (dn_eq m d)) $$ Hdn
  icases Hdn' with ⟨Hrow, Ho⟩
  ihave Hrow' := (Entails.of_eq (x_pieces d (xt m d)).symm) $$ Hrow
  ihave Ho' := (Entails.of_eq (o_pieces_row d (xt m d))) $$ Ho
  ihave Hx := (pointsTo_split_subset (q := fullShare) (f := xt m d) (Finset.subset_univ (Pieces.rowSet qK.val : Finset (Idx (ℓx d))))).2 $$ [Hrow' Hxrest]
  · isplitl [Hrow']; · iexact Hrow'
    iexact Hxrest
  iapply Hk
  isplitl [Hst]; · iexact Hst
  rw [held_sub_split (SparseCore.T d) pair_sub ((opC m d).result V), held_pair,
    StableHlo.nullary_result_ne _ _ _ V (show (main_v0 : Ref sig .tc) ≠ main_v8 by decide), StableHlo.nullary_result, hV,
    held_congr (SparseCore.T d) (V := (opC m d).result V) (V' := V)
      (fun b hb => (opC m d).result_of_not_mem V (fun hw => (Finset.mem_sdiff.mp hb).2
        (Finset.mem_insert_of_mem (Finset.mem_singleton.mpr (Finset.mem_singleton.mp hw)))))]
  isplitl [Hx Ho']
  · isplitl [Hx]; · iexact Hx
    iexact Ho'
  · iexact Hrest

end Cert.Proof.CallK7

end
-- ==== Proof.CallPieces8.lean ====
/-
  The pieces of one call: row q of the transposed argument, held at some contents, is the 32 vector subcores' pieces of
  it; result q, held whole at some contents, is their pieces of it.
-/
import proofs.«206869_g37898791420194_cont_8to1_b_558_20_alg».proof.Proof.TileK8Defs
import proofs.«206869_g37898791420194_cont_8to1_b_558_20_alg».proof.Proof.LaunchPieces

noncomputable section

namespace Cert.Proof.CallK8

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic
open Cert.Proof.Pieces (crd)

variable {F : FTy → Type}

abbrev UU : Type := URounds (GSem nD τ sig) ℕ × Counters
local notation "𝕄" => MT nD τ sig (HIx 22) (Elt F) ℕ UU ℕ

/-- The call's number. -/
abbrev qK : Fin 22 := 8
theorem hq : qK.val < 22 := qK.isLt

abbrev vx' : DevRef τ sig := Proc.devRef .tc (main_v0 : Ref sig .tc)
abbrev vo' : DevRef τ sig := Proc.devRef .tc (main_v9 : Ref sig .tc)
abbrev ℓx (d : Dev nD) : Loc nD τ sig := (SparseCore.T d).loc main_v0
abbrev ℓo (d : Dev nD) : Loc nD τ sig := (SparseCore.T d).loc main_v9

variable [FloatOps F]

/-- Row q of the transposed argument, held at contents f, is the tasks' pieces of it. -/
theorem x_pieces (d : Dev nD) (f : Buf (Elt F) (ℓx d)) :
    (ℓx d ↦[(Pieces.rowSet qK.val : Finset (Idx (ℓx d)))]{fullShare} f : sProp 𝕄)
      = bigSep Finset.univ fun c : Fin 2 => bigSep Finset.univ fun s : Fin 16 => bigSep (Finset.range 18) (TileK8.xP d (crd c s) f) := by
  rw [← Pieces.in_cover qK.val hq, pointsTo_biUnion _ _ (Pieces.in_disj qK.val hq), Pieces.bigSep_tris]
  refine bigSep_congr fun c _ => bigSep_congr fun s _ => bigSep_congr fun n _ => ?_
  unfold TileK8.xP
  by_cases h : TileK8.valid (crd c s) n
  · rw [if_pos h, if_pos (show Pieces.pnum (c, s, n) < 500 from (TileK8.valid_iff _ _).mp h)]
    show _ = ((TileK8.inM (crd c s) n).view.loc (TileK8.thr d (crd c s)) ↦[(TileK8.inM (crd c s) n).view.set]{fullShare} f)
    rw [show (TileK8.inM (crd c s) n).view.set = Pieces.inSet qK.val hq (c, s, n) from View.set_slice_whole _ _]
  · rw [if_neg h, if_neg (show ¬ Pieces.pnum (c, s, n) < 500 from fun h' => h ((TileK8.valid_iff _ _).mpr h'))]
    rfl

/-- Result q, held whole at contents g, is the tasks' pieces of it at g. -/
theorem o_pieces (d : Dev nD) (g : Buf (Elt F) (ℓo d)) :
    (ℓo d ↦{fullShare} g : sProp 𝕄)
      = bigSep Finset.univ fun c : Fin 2 => bigSep Finset.univ fun s : Fin 16 => bigSep (Finset.range 18) fun n =>
          if TileK8.valid (crd c s) n then
            ((TileK8.outM (crd c s) n).view.loc (TileK8.thr d (crd c s)) ↦[(TileK8.outM (crd c s) n).view.set]{fullShare} g : sProp 𝕄)
          else iprop(emp) := by
  show (ℓo d ↦[(Finset.univ : Finset (Idx (ℓo d)))]{fullShare} g : sProp 𝕄) = _
  rw [← Pieces.out_cover, pointsTo_biUnion _ _ Pieces.out_disj, Pieces.bigSep_tris]
  refine bigSep_congr fun c _ => bigSep_congr fun s _ => bigSep_congr fun n _ => ?_
  by_cases h : TileK8.valid (crd c s) n
  · rw [if_pos h, if_pos (show Pieces.pnum (c, s, n) < 500 from (TileK8.valid_iff _ _).mp h)]
    rw [show (TileK8.outM (crd c s) n).view.set = Pieces.outSet (c, s, n) from View.set_slice_whole _ _]
  · rw [if_neg h, if_neg (show ¬ Pieces.pnum (c, s, n) < 500 from fun h' => h ((TileK8.valid_iff _ _).mpr h'))]
    rfl

end Cert.Proof.CallK8

end
-- ==== Proof.LaunchStep8.lean ====
/-
  One call of a copy kernel, run from the TensorCore: from the TensorCore's buffers held at a valuation whose transposed
  argument is the transpose, the call leaves them at the same valuation but for result q, which holds row q.
-/
import proofs.«206869_g37898791420194_cont_8to1_b_558_20_alg».proof.Proof.LaunchP
import proofs.«206869_g37898791420194_cont_8to1_b_558_20_alg».proof.Proof.CallPieces8

noncomputable section

namespace Cert.Proof.CallK8

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic
open Idealize.ShloMosaic.StableHlo (tcRefs devRef_mem_tcRefs held_sub_split held_congr)
open Cert.Proof.Pieces (crd)
open Cert.Proof.LaunchKI (K D 𝒱 𝒱₀ v₀ EH P xt)

variable {F : FTy → Type}

local notation "𝕄" => MT nD τ sig (HIx 22) (Elt F) ℕ UU ℕ

variable (m : (ℓ : Loc nD τ sig) → Buf (Elt F) ℓ)
variable [FloatOps F]

/-- Result q held whole at some contents gives every task its pieces of it, each at some contents. -/
theorem o_pieces_ex (d : Dev nD) (g : Buf (Elt F) (ℓo d)) :
    (ℓo d ↦{fullShare} g : sProp 𝕄)
      ⊢ bigSep Finset.univ fun c : Fin 2 => bigSep Finset.univ fun s : Fin 16 => bigSep (Finset.range 18) (TileK8.oP (F := F) d (crd c s)) := by
  rw [o_pieces d g]
  refine bigSep_mono fun c _ => bigSep_mono fun s _ => bigSep_mono fun n _ => ?_
  unfold TileK8.oP
  by_cases h : TileK8.valid (crd c s) n
  · rw [if_pos h, if_pos h]
    exact exists_intro (Φ := fun f => (((TileK8.outM (crd c s) n).view.loc (TileK8.thr d (crd c s)) ↦[(TileK8.outM (crd c s) n).view.set]{fullShare} f : sProp 𝕄))) g
  · rw [if_neg h, if_neg h]; exact BI.Entails.refl _

/-- The tasks' pieces of result q, each holding row q of f, are result q whole holding that row. -/
theorem o_pieces_row (d : Dev nD) (f : Buf (Elt F) (ℓx d)) :
    (bigSep Finset.univ fun c : Fin 2 => bigSep Finset.univ fun s : Fin 16 => bigSep (Finset.range 18) (TileK8.oQ d (crd c s) f))
      = (ℓo d ↦{fullShare} (Cert.Spec.row qK f : Buf (Elt F) (ℓo d)) : sProp 𝕄) := by
  rw [o_pieces d (Cert.Spec.row qK f : Buf (Elt F) (ℓo d))]
  rfl

omit [FloatOps F] in
/-- A separating conjunction over the call's grid of vector subcores, or of SparseCores, is one over sixteen, or two. -/
theorem bigSep_castSub (Φ : Fin 16 → sProp 𝕄) :
    (bigSep Finset.univ fun i : Fin ((K (F := F)).nSub qK) => Φ (i.cast (LaunchKI.nSub_eq qK))) = bigSep Finset.univ Φ :=
  bigSep_congr fun _ _ => congrArg Φ (Fin.ext rfl)
omit [FloatOps F] in
theorem bigSep_castCore (Φ : Fin 2 → sProp 𝕄) :
    (bigSep Finset.univ fun c : Fin ((K (F := F)).nCore qK) => Φ (c.cast (LaunchKI.nCore_eq qK))) = bigSep Finset.univ Φ :=
  bigSep_congr fun _ _ => congrArg Φ (Fin.ext rfl)

theorem goQ_eq (d : Dev nD) (c : Fin 2) (s : Fin 16) : LaunchKI.goQ m qK d c s = TileK8.goRes d (crd c s) (xt m d) := rfl
theorem tdQ_eq (d : Dev nD) (c : Fin 2) (s : Fin 16) : LaunchKI.tdQ m qK d c s = TileK8.tdRes d (crd c s) (xt m d) := rfl

/-- What the call takes for the two SparseCores: every task's pieces. -/
theorem st_eq (d : Dev nD) :
    (bigSep Finset.univ fun c : Fin ((K (F := F)).nCore qK) => (P m).st qK d c)
      = iprop((bigSep Finset.univ fun c : Fin 2 => bigSep Finset.univ fun s : Fin 16 => bigSep (Finset.range 18) (TileK8.xP d (crd c s) (xt m d)))
          ∗ (bigSep Finset.univ fun c : Fin 2 => bigSep Finset.univ fun s : Fin 16 => bigSep (Finset.range 18) (TileK8.oP (F := F) d (crd c s)))) := by
  have h1 : (bigSep Finset.univ fun c : Fin ((K (F := F)).nCore qK) => (P m).st qK d c)
      = bigSep Finset.univ fun c : Fin ((K (F := F)).nCore qK) =>
          (fun c' : Fin 2 => bigSep (Finset.univ : Finset (Fin 16)) fun s => LaunchKI.goQ m qK d c' s) (c.cast (LaunchKI.nCore_eq qK)) :=
    bigSep_congr fun c _ => bigSep_castSub (fun s => LaunchKI.goQ m qK d (c.cast (LaunchKI.nCore_eq qK)) s)
  rw [h1, bigSep_castCore (fun c' : Fin 2 => bigSep (Finset.univ : Finset (Fin 16)) fun s => LaunchKI.goQ m qK d c' s), ← bigSep_sep']
  refine bigSep_congr fun c _ => ?_
  rw [← bigSep_sep']
  refine bigSep_congr fun s _ => ?_
  rw [goQ_eq]; rfl

/-- What it hands back. -/
theorem dn_eq (d : Dev nD) :
    (bigSep Finset.univ fun c : Fin ((K (F := F)).nCore qK) => (P m).dn qK d c)
      = iprop((bigSep Finset.univ fun c : Fin 2 => bigSep Finset.univ fun s : Fin 16 => bigSep (Finset.range 18) (TileK8.xP d (crd c s) (xt m d)))
          ∗ (bigSep Finset.univ fun c : Fin 2 => bigSep Finset.univ fun s : Fin 16 => bigSep (Finset.range 18) (TileK8.oQ d (crd c s) (xt m d)))) := by
  have h1 : (bigSep Finset.univ fun c : Fin ((K (F := F)).nCore qK) => (P m).dn qK d c)
      = bigSep Finset.univ fun c : Fin ((K (F := F)).nCore qK) =>
          (fun c' : Fin 2 => bigSep (Finset.univ : Finset (Fin 16)) fun s => LaunchKI.tdQ m qK d c' s) (c.cast (LaunchKI.nCore_eq qK)) :=
    bigSep_congr fun c _ => bigSep_castSub (fun s => LaunchKI.tdQ m qK d (c.cast (LaunchKI.nCore_eq qK)) s)
  rw [h1, bigSep_castCore (fun c' : Fin 2 => bigSep (Finset.univ : Finset (Fin 16)) fun s => LaunchKI.tdQ m qK d c' s), ← bigSep_sep']
  refine bigSep_congr fun c _ => ?_
  rw [← bigSep_sep']
  refine bigSep_congr fun s _ => ?_
  rw [tdQ_eq]; rfl

omit [FloatOps F] in
theorem pair_sub : ({vx', vo'} : Finset (DevRef τ sig)) ⊆ tcRefs τ sig :=
  Finset.insert_subset (devRef_mem_tcRefs _) (Finset.singleton_subset_iff.mpr (devRef_mem_tcRefs _))

omit [FloatOps F] in
theorem held_pair (d : Dev nD) (V : Valuation τ sig (Elt F)) :
    (held (SparseCore.T d) ({vx', vo'} : Finset (DevRef τ sig)) V : sProp 𝕄) = iprop((ℓx d ↦{fullShare} V vx') ∗ (ℓo d ↦{fullShare} V vo')) := by
  unfold held; rw [SparseCore.bigSep_insert' (by decide), bigSep_singleton]

/-- What the call does to the TensorCore's buffers, as an operation on valuations: result q takes row q of the transpose. -/
abbrev opC (d : Dev nD) : HloOp τ sig (Elt F) := StableHlo.nullary main_v9 (Cert.Spec.row qK (xt m d))

/-- The call, from the TensorCore's buffers held at a valuation V whose transposed argument is the transpose: it
    leaves them at V but for result q, which holds row q of the transpose. -/
theorem step (κ : GSem nD τ sig → ℕ) (d : Dev nD) (V : Valuation τ sig (Elt F)) (hV : V vx' = xt m d) {Φ : PUnit → sProp 𝕄} :
    iprop((K (F := F)).ctx EH (P m) κ ∗ (K (F := F)).tcSt EH d qK.val ∗ held (SparseCore.T d) (tcRefs τ sig) V
        ∗ (((K (F := F)).tcSt EH d (qK.val + 1) ∗ held (SparseCore.T d) (tcRefs τ sig) ((opC m d).result V)) -∗ Φ ⟨⟩))
      ⊢ wp frame (wpE ((K (F := F)).defs (D (F := F))) 𝒱 (SparseCore.T d) none) Set.univ ((K (F := F)).run d qK) Φ := by
  rw [held_sub_split (SparseCore.T d) pair_sub V, held_pair, hV]
  iintro ⟨#Hctx, Hst, ⟨⟨Hx, Ho⟩, Hrest⟩, Hk⟩
  ihave Hx' := (pointsTo_split_subset (q := fullShare) (f := xt m d) (Finset.subset_univ (Pieces.rowSet qK.val : Finset (Idx (ℓx d))))).1 $$ Hx
  icases Hx' with ⟨Hrow, Hxrest⟩
  iapply ((K (F := F)).wp_run (D (F := F)) 𝒱 (EH := EH) (P := P m) κ d qK) $$ [Hst Hrow Ho Hk Hxrest Hrest]
  isplitr; · iexact Hctx
  isplitl [Hst]; · iexact Hst
  isplitl [Hrow Ho]
  · rw [st_eq]
    isplitl [Hrow]
    · iapply (Entails.of_eq (x_pieces d (xt m d))); iexact Hrow
    · iapply (o_pieces_ex d (V vo')); iexact Ho
  iintro ⟨Hst, Hdn⟩
  ihave Hdn' := (Entails.of_eq (dn_eq m d)) $$ Hdn
  icases Hdn' with ⟨Hrow, Ho⟩
  ihave Hrow' := (Entails.of_eq (x_pieces d (xt m d)).symm) $$ Hrow
  ihave Ho' := (Entails.of_eq (o_pieces_row d (xt m d))) $$ Ho
  ihave Hx := (pointsTo_split_subset (q := fullShare) (f := xt m d) (Finset.subset_univ (Pieces.rowSet qK.val : Finset (Idx (ℓx d))))).2 $$ [Hrow' Hxrest]
  · isplitl [Hrow']; · iexact Hrow'
    iexact Hxrest
  iapply Hk
  isplitl [Hst]; · iexact Hst
  rw [held_sub_split (SparseCore.T d) pair_sub ((opC m d).result V), held_pair,
    StableHlo.nullary_result_ne _ _ _ V (show (main_v0 : Ref sig .tc) ≠ main_v9 by decide), StableHlo.nullary_result, hV,
    held_congr (SparseCore.T d) (V := (opC m d).result V) (V' := V)
      (fun b hb => (opC m d).result_of_not_mem V (fun hw => (Finset.mem_sdiff.mp hb).2
        (Finset.mem_insert_of_mem (Finset.mem_singleton.mpr (Finset.mem_singleton.mp hw)))))]
  isplitl [Hx Ho']
  · isplitl [Hx]; · iexact Hx
    iexact Ho'
  · iexact Hrest

end Cert.Proof.CallK8

end
-- ==== Proof.CallPieces9.lean ====
/-
  The pieces of one call: row q of the transposed argument, held at some contents, is the 32 vector subcores' pieces of
  it; result q, held whole at some contents, is their pieces of it.
-/
import proofs.«206869_g37898791420194_cont_8to1_b_558_20_alg».proof.Proof.TileK9Defs
import proofs.«206869_g37898791420194_cont_8to1_b_558_20_alg».proof.Proof.LaunchPieces

noncomputable section

namespace Cert.Proof.CallK9

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic
open Cert.Proof.Pieces (crd)

variable {F : FTy → Type}

abbrev UU : Type := URounds (GSem nD τ sig) ℕ × Counters
local notation "𝕄" => MT nD τ sig (HIx 22) (Elt F) ℕ UU ℕ

/-- The call's number. -/
abbrev qK : Fin 22 := 9
theorem hq : qK.val < 22 := qK.isLt

abbrev vx' : DevRef τ sig := Proc.devRef .tc (main_v0 : Ref sig .tc)
abbrev vo' : DevRef τ sig := Proc.devRef .tc (main_v10 : Ref sig .tc)
abbrev ℓx (d : Dev nD) : Loc nD τ sig := (SparseCore.T d).loc main_v0
abbrev ℓo (d : Dev nD) : Loc nD τ sig := (SparseCore.T d).loc main_v10

variable [FloatOps F]

/-- Row q of the transposed argument, held at contents f, is the tasks' pieces of it. -/
theorem x_pieces (d : Dev nD) (f : Buf (Elt F) (ℓx d)) :
    (ℓx d ↦[(Pieces.rowSet qK.val : Finset (Idx (ℓx d)))]{fullShare} f : sProp 𝕄)
      = bigSep Finset.univ fun c : Fin 2 => bigSep Finset.univ fun s : Fin 16 => bigSep (Finset.range 18) (TileK9.xP d (crd c s) f) := by
  rw [← Pieces.in_cover qK.val hq, pointsTo_biUnion _ _ (Pieces.in_disj qK.val hq), Pieces.bigSep_tris]
  refine bigSep_congr fun c _ => bigSep_congr fun s _ => bigSep_congr fun n _ => ?_
  unfold TileK9.xP
  by_cases h : TileK9.valid (crd c s) n
  · rw [if_pos h, if_pos (show Pieces.pnum (c, s, n) < 500 from (TileK9.valid_iff _ _).mp h)]
    show _ = ((TileK9.inM (crd c s) n).view.loc (TileK9.thr d (crd c s)) ↦[(TileK9.inM (crd c s) n).view.set]{fullShare} f)
    rw [show (TileK9.inM (crd c s) n).view.set = Pieces.inSet qK.val hq (c, s, n) from View.set_slice_whole _ _]
  · rw [if_neg h, if_neg (show ¬ Pieces.pnum (c, s, n) < 500 from fun h' => h ((TileK9.valid_iff _ _).mpr h'))]
    rfl

/-- Result q, held whole at contents g, is the tasks' pieces of it at g. -/
theorem o_pieces (d : Dev nD) (g : Buf (Elt F) (ℓo d)) :
    (ℓo d ↦{fullShare} g : sProp 𝕄)
      = bigSep Finset.univ fun c : Fin 2 => bigSep Finset.univ fun s : Fin 16 => bigSep (Finset.range 18) fun n =>
          if TileK9.valid (crd c s) n then
            ((TileK9.outM (crd c s) n).view.loc (TileK9.thr d (crd c s)) ↦[(TileK9.outM (crd c s) n).view.set]{fullShare} g : sProp 𝕄)
          else iprop(emp) := by
  show (ℓo d ↦[(Finset.univ : Finset (Idx (ℓo d)))]{fullShare} g : sProp 𝕄) = _
  rw [← Pieces.out_cover, pointsTo_biUnion _ _ Pieces.out_disj, Pieces.bigSep_tris]
  refine bigSep_congr fun c _ => bigSep_congr fun s _ => bigSep_congr fun n _ => ?_
  by_cases h : TileK9.valid (crd c s) n
  · rw [if_pos h, if_pos (show Pieces.pnum (c, s, n) < 500 from (TileK9.valid_iff _ _).mp h)]
    rw [show (TileK9.outM (crd c s) n).view.set = Pieces.outSet (c, s, n) from View.set_slice_whole _ _]
  · rw [if_neg h, if_neg (show ¬ Pieces.pnum (c, s, n) < 500 from fun h' => h ((TileK9.valid_iff _ _).mpr h'))]
    rfl

end Cert.Proof.CallK9

end
-- ==== Proof.LaunchStep9.lean ====
/-
  One call of a copy kernel, run from the TensorCore: from the TensorCore's buffers held at a valuation whose transposed
  argument is the transpose, the call leaves them at the same valuation but for result q, which holds row q.
-/
import proofs.«206869_g37898791420194_cont_8to1_b_558_20_alg».proof.Proof.LaunchP
import proofs.«206869_g37898791420194_cont_8to1_b_558_20_alg».proof.Proof.CallPieces9

noncomputable section

namespace Cert.Proof.CallK9

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic
open Idealize.ShloMosaic.StableHlo (tcRefs devRef_mem_tcRefs held_sub_split held_congr)
open Cert.Proof.Pieces (crd)
open Cert.Proof.LaunchKI (K D 𝒱 𝒱₀ v₀ EH P xt)

variable {F : FTy → Type}

local notation "𝕄" => MT nD τ sig (HIx 22) (Elt F) ℕ UU ℕ

variable (m : (ℓ : Loc nD τ sig) → Buf (Elt F) ℓ)
variable [FloatOps F]

/-- Result q held whole at some contents gives every task its pieces of it, each at some contents. -/
theorem o_pieces_ex (d : Dev nD) (g : Buf (Elt F) (ℓo d)) :
    (ℓo d ↦{fullShare} g : sProp 𝕄)
      ⊢ bigSep Finset.univ fun c : Fin 2 => bigSep Finset.univ fun s : Fin 16 => bigSep (Finset.range 18) (TileK9.oP (F := F) d (crd c s)) := by
  rw [o_pieces d g]
  refine bigSep_mono fun c _ => bigSep_mono fun s _ => bigSep_mono fun n _ => ?_
  unfold TileK9.oP
  by_cases h : TileK9.valid (crd c s) n
  · rw [if_pos h, if_pos h]
    exact exists_intro (Φ := fun f => (((TileK9.outM (crd c s) n).view.loc (TileK9.thr d (crd c s)) ↦[(TileK9.outM (crd c s) n).view.set]{fullShare} f : sProp 𝕄))) g
  · rw [if_neg h, if_neg h]; exact BI.Entails.refl _

/-- The tasks' pieces of result q, each holding row q of f, are result q whole holding that row. -/
theorem o_pieces_row (d : Dev nD) (f : Buf (Elt F) (ℓx d)) :
    (bigSep Finset.univ fun c : Fin 2 => bigSep Finset.univ fun s : Fin 16 => bigSep (Finset.range 18) (TileK9.oQ d (crd c s) f))
      = (ℓo d ↦{fullShare} (Cert.Spec.row qK f : Buf (Elt F) (ℓo d)) : sProp 𝕄) := by
  rw [o_pieces d (Cert.Spec.row qK f : Buf (Elt F) (ℓo d))]
  rfl

omit [FloatOps F] in
/-- A separating conjunction over the call's grid of vector subcores, or of SparseCores, is one over sixteen, or two. -/
theorem bigSep_castSub (Φ : Fin 16 → sProp 𝕄) :
    (bigSep Finset.univ fun i : Fin ((K (F := F)).nSub qK) => Φ (i.cast (LaunchKI.nSub_eq qK))) = bigSep Finset.univ Φ :=
  bigSep_congr fun _ _ => congrArg Φ (Fin.ext rfl)
omit [FloatOps F] in
theorem bigSep_castCore (Φ : Fin 2 → sProp 𝕄) :
    (bigSep Finset.univ fun c : Fin ((K (F := F)).nCore qK) => Φ (c.cast (LaunchKI.nCore_eq qK))) = bigSep Finset.univ Φ :=
  bigSep_congr fun _ _ => congrArg Φ (Fin.ext rfl)

theorem goQ_eq (d : Dev nD) (c : Fin 2) (s : Fin 16) : LaunchKI.goQ m qK d c s = TileK9.goRes d (crd c s) (xt m d) := rfl
theorem tdQ_eq (d : Dev nD) (c : Fin 2) (s : Fin 16) : LaunchKI.tdQ m qK d c s = TileK9.tdRes d (crd c s) (xt m d) := rfl

/-- What the call takes for the two SparseCores: every task's pieces. -/
theorem st_eq (d : Dev nD) :
    (bigSep Finset.univ fun c : Fin ((K (F := F)).nCore qK) => (P m).st qK d c)
      = iprop((bigSep Finset.univ fun c : Fin 2 => bigSep Finset.univ fun s : Fin 16 => bigSep (Finset.range 18) (TileK9.xP d (crd c s) (xt m d)))
          ∗ (bigSep Finset.univ fun c : Fin 2 => bigSep Finset.univ fun s : Fin 16 => bigSep (Finset.range 18) (TileK9.oP (F := F) d (crd c s)))) := by
  have h1 : (bigSep Finset.univ fun c : Fin ((K (F := F)).nCore qK) => (P m).st qK d c)
      = bigSep Finset.univ fun c : Fin ((K (F := F)).nCore qK) =>
          (fun c' : Fin 2 => bigSep (Finset.univ : Finset (Fin 16)) fun s => LaunchKI.goQ m qK d c' s) (c.cast (LaunchKI.nCore_eq qK)) :=
    bigSep_congr fun c _ => bigSep_castSub (fun s => LaunchKI.goQ m qK d (c.cast (LaunchKI.nCore_eq qK)) s)
  rw [h1, bigSep_castCore (fun c' : Fin 2 => bigSep (Finset.univ : Finset (Fin 16)) fun s => LaunchKI.goQ m qK d c' s), ← bigSep_sep']
  refine bigSep_congr fun c _ => ?_
  rw [← bigSep_sep']
  refine bigSep_congr fun s _ => ?_
  rw [goQ_eq]; rfl

/-- What it hands back. -/
theorem dn_eq (d : Dev nD) :
    (bigSep Finset.univ fun c : Fin ((K (F := F)).nCore qK) => (P m).dn qK d c)
      = iprop((bigSep Finset.univ fun c : Fin 2 => bigSep Finset.univ fun s : Fin 16 => bigSep (Finset.range 18) (TileK9.xP d (crd c s) (xt m d)))
          ∗ (bigSep Finset.univ fun c : Fin 2 => bigSep Finset.univ fun s : Fin 16 => bigSep (Finset.range 18) (TileK9.oQ d (crd c s) (xt m d)))) := by
  have h1 : (bigSep Finset.univ fun c : Fin ((K (F := F)).nCore qK) => (P m).dn qK d c)
      = bigSep Finset.univ fun c : Fin ((K (F := F)).nCore qK) =>
          (fun c' : Fin 2 => bigSep (Finset.univ : Finset (Fin 16)) fun s => LaunchKI.tdQ m qK d c' s) (c.cast (LaunchKI.nCore_eq qK)) :=
    bigSep_congr fun c _ => bigSep_castSub (fun s => LaunchKI.tdQ m qK d (c.cast (LaunchKI.nCore_eq qK)) s)
  rw [h1, bigSep_castCore (fun c' : Fin 2 => bigSep (Finset.univ : Finset (Fin 16)) fun s => LaunchKI.tdQ m qK d c' s), ← bigSep_sep']
  refine bigSep_congr fun c _ => ?_
  rw [← bigSep_sep']
  refine bigSep_congr fun s _ => ?_
  rw [tdQ_eq]; rfl

omit [FloatOps F] in
theorem pair_sub : ({vx', vo'} : Finset (DevRef τ sig)) ⊆ tcRefs τ sig :=
  Finset.insert_subset (devRef_mem_tcRefs _) (Finset.singleton_subset_iff.mpr (devRef_mem_tcRefs _))

omit [FloatOps F] in
theorem held_pair (d : Dev nD) (V : Valuation τ sig (Elt F)) :
    (held (SparseCore.T d) ({vx', vo'} : Finset (DevRef τ sig)) V : sProp 𝕄) = iprop((ℓx d ↦{fullShare} V vx') ∗ (ℓo d ↦{fullShare} V vo')) := by
  unfold held; rw [SparseCore.bigSep_insert' (by decide), bigSep_singleton]

/-- What the call does to the TensorCore's buffers, as an operation on valuations: result q takes row q of the transpose. -/
abbrev opC (d : Dev nD) : HloOp τ sig (Elt F) := StableHlo.nullary main_v10 (Cert.Spec.row qK (xt m d))

/-- The call, from the TensorCore's buffers held at a valuation V whose transposed argument is the transpose: it
    leaves them at V but for result q, which holds row q of the transpose. -/
theorem step (κ : GSem nD τ sig → ℕ) (d : Dev nD) (V : Valuation τ sig (Elt F)) (hV : V vx' = xt m d) {Φ : PUnit → sProp 𝕄} :
    iprop((K (F := F)).ctx EH (P m) κ ∗ (K (F := F)).tcSt EH d qK.val ∗ held (SparseCore.T d) (tcRefs τ sig) V
        ∗ (((K (F := F)).tcSt EH d (qK.val + 1) ∗ held (SparseCore.T d) (tcRefs τ sig) ((opC m d).result V)) -∗ Φ ⟨⟩))
      ⊢ wp frame (wpE ((K (F := F)).defs (D (F := F))) 𝒱 (SparseCore.T d) none) Set.univ ((K (F := F)).run d qK) Φ := by
  rw [held_sub_split (SparseCore.T d) pair_sub V, held_pair, hV]
  iintro ⟨#Hctx, Hst, ⟨⟨Hx, Ho⟩, Hrest⟩, Hk⟩
  ihave Hx' := (pointsTo_split_subset (q := fullShare) (f := xt m d) (Finset.subset_univ (Pieces.rowSet qK.val : Finset (Idx (ℓx d))))).1 $$ Hx
  icases Hx' with ⟨Hrow, Hxrest⟩
  iapply ((K (F := F)).wp_run (D (F := F)) 𝒱 (EH := EH) (P := P m) κ d qK) $$ [Hst Hrow Ho Hk Hxrest Hrest]
  isplitr; · iexact Hctx
  isplitl [Hst]; · iexact Hst
  isplitl [Hrow Ho]
  · rw [st_eq]
    isplitl [Hrow]
    · iapply (Entails.of_eq (x_pieces d (xt m d))); iexact Hrow
    · iapply (o_pieces_ex d (V vo')); iexact Ho
  iintro ⟨Hst, Hdn⟩
  ihave Hdn' := (Entails.of_eq (dn_eq m d)) $$ Hdn
  icases Hdn' with ⟨Hrow, Ho⟩
  ihave Hrow' := (Entails.of_eq (x_pieces d (xt m d)).symm) $$ Hrow
  ihave Ho' := (Entails.of_eq (o_pieces_row d (xt m d))) $$ Ho
  ihave Hx := (pointsTo_split_subset (q := fullShare) (f := xt m d) (Finset.subset_univ (Pieces.rowSet qK.val : Finset (Idx (ℓx d))))).2 $$ [Hrow' Hxrest]
  · isplitl [Hrow']; · iexact Hrow'
    iexact Hxrest
  iapply Hk
  isplitl [Hst]; · iexact Hst
  rw [held_sub_split (SparseCore.T d) pair_sub ((opC m d).result V), held_pair,
    StableHlo.nullary_result_ne _ _ _ V (show (main_v0 : Ref sig .tc) ≠ main_v10 by decide), StableHlo.nullary_result, hV,
    held_congr (SparseCore.T d) (V := (opC m d).result V) (V' := V)
      (fun b hb => (opC m d).result_of_not_mem V (fun hw => (Finset.mem_sdiff.mp hb).2
        (Finset.mem_insert_of_mem (Finset.mem_singleton.mpr (Finset.mem_singleton.mp hw)))))]
  isplitl [Hx Ho']
  · isplitl [Hx]; · iexact Hx
    iexact Ho'
  · iexact Hrest

end Cert.Proof.CallK9

end
-- ==== Proof.CallPieces10.lean ====
/-
  The pieces of one call: row q of the transposed argument, held at some contents, is the 32 vector subcores' pieces of
  it; result q, held whole at some contents, is their pieces of it.
-/
import proofs.«206869_g37898791420194_cont_8to1_b_558_20_alg».proof.Proof.TileK10Defs
import proofs.«206869_g37898791420194_cont_8to1_b_558_20_alg».proof.Proof.LaunchPieces

noncomputable section

namespace Cert.Proof.CallK10

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic
open Cert.Proof.Pieces (crd)

variable {F : FTy → Type}

abbrev UU : Type := URounds (GSem nD τ sig) ℕ × Counters
local notation "𝕄" => MT nD τ sig (HIx 22) (Elt F) ℕ UU ℕ

/-- The call's number. -/
abbrev qK : Fin 22 := 10
theorem hq : qK.val < 22 := qK.isLt

abbrev vx' : DevRef τ sig := Proc.devRef .tc (main_v0 : Ref sig .tc)
abbrev vo' : DevRef τ sig := Proc.devRef .tc (main_v11 : Ref sig .tc)
abbrev ℓx (d : Dev nD) : Loc nD τ sig := (SparseCore.T d).loc main_v0
abbrev ℓo (d : Dev nD) : Loc nD τ sig := (SparseCore.T d).loc main_v11

variable [FloatOps F]

/-- Row q of the transposed argument, held at contents f, is the tasks' pieces of it. -/
theorem x_pieces (d : Dev nD) (f : Buf (Elt F) (ℓx d)) :
    (ℓx d ↦[(Pieces.rowSet qK.val : Finset (Idx (ℓx d)))]{fullShare} f : sProp 𝕄)
      = bigSep Finset.univ fun c : Fin 2 => bigSep Finset.univ fun s : Fin 16 => bigSep (Finset.range 18) (TileK10.xP d (crd c s) f) := by
  rw [← Pieces.in_cover qK.val hq, pointsTo_biUnion _ _ (Pieces.in_disj qK.val hq), Pieces.bigSep_tris]
  refine bigSep_congr fun c _ => bigSep_congr fun s _ => bigSep_congr fun n _ => ?_
  unfold TileK10.xP
  by_cases h : TileK10.valid (crd c s) n
  · rw [if_pos h, if_pos (show Pieces.pnum (c, s, n) < 500 from (TileK10.valid_iff _ _).mp h)]
    show _ = ((TileK10.inM (crd c s) n).view.loc (TileK10.thr d (crd c s)) ↦[(TileK10.inM (crd c s) n).view.set]{fullShare} f)
    rw [show (TileK10.inM (crd c s) n).view.set = Pieces.inSet qK.val hq (c, s, n) from View.set_slice_whole _ _]
  · rw [if_neg h, if_neg (show ¬ Pieces.pnum (c, s, n) < 500 from fun h' => h ((TileK10.valid_iff _ _).mpr h'))]
    rfl

/-- Result q, held whole at contents g, is the tasks' pieces of it at g. -/
theorem o_pieces (d : Dev nD) (g : Buf (Elt F) (ℓo d)) :
    (ℓo d ↦{fullShare} g : sProp 𝕄)
      = bigSep Finset.univ fun c : Fin 2 => bigSep Finset.univ fun s : Fin 16 => bigSep (Finset.range 18) fun n =>
          if TileK10.valid (crd c s) n then
            ((TileK10.outM (crd c s) n).view.loc (TileK10.thr d (crd c s)) ↦[(TileK10.outM (crd c s) n).view.set]{fullShare} g : sProp 𝕄)
          else iprop(emp) := by
  show (ℓo d ↦[(Finset.univ : Finset (Idx (ℓo d)))]{fullShare} g : sProp 𝕄) = _
  rw [← Pieces.out_cover, pointsTo_biUnion _ _ Pieces.out_disj, Pieces.bigSep_tris]
  refine bigSep_congr fun c _ => bigSep_congr fun s _ => bigSep_congr fun n _ => ?_
  by_cases h : TileK10.valid (crd c s) n
  · rw [if_pos h, if_pos (show Pieces.pnum (c, s, n) < 500 from (TileK10.valid_iff _ _).mp h)]
    rw [show (TileK10.outM (crd c s) n).view.set = Pieces.outSet (c, s, n) from View.set_slice_whole _ _]
  · rw [if_neg h, if_neg (show ¬ Pieces.pnum (c, s, n) < 500 from fun h' => h ((TileK10.valid_iff _ _).mpr h'))]
    rfl

end Cert.Proof.CallK10

end
-- ==== Proof.LaunchStep10.lean ====
/-
  One call of a copy kernel, run from the TensorCore: from the TensorCore's buffers held at a valuation whose transposed
  argument is the transpose, the call leaves them at the same valuation but for result q, which holds row q.
-/
import proofs.«206869_g37898791420194_cont_8to1_b_558_20_alg».proof.Proof.LaunchP
import proofs.«206869_g37898791420194_cont_8to1_b_558_20_alg».proof.Proof.CallPieces10

noncomputable section

namespace Cert.Proof.CallK10

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic
open Idealize.ShloMosaic.StableHlo (tcRefs devRef_mem_tcRefs held_sub_split held_congr)
open Cert.Proof.Pieces (crd)
open Cert.Proof.LaunchKI (K D 𝒱 𝒱₀ v₀ EH P xt)

variable {F : FTy → Type}

local notation "𝕄" => MT nD τ sig (HIx 22) (Elt F) ℕ UU ℕ

variable (m : (ℓ : Loc nD τ sig) → Buf (Elt F) ℓ)
variable [FloatOps F]

/-- Result q held whole at some contents gives every task its pieces of it, each at some contents. -/
theorem o_pieces_ex (d : Dev nD) (g : Buf (Elt F) (ℓo d)) :
    (ℓo d ↦{fullShare} g : sProp 𝕄)
      ⊢ bigSep Finset.univ fun c : Fin 2 => bigSep Finset.univ fun s : Fin 16 => bigSep (Finset.range 18) (TileK10.oP (F := F) d (crd c s)) := by
  rw [o_pieces d g]
  refine bigSep_mono fun c _ => bigSep_mono fun s _ => bigSep_mono fun n _ => ?_
  unfold TileK10.oP
  by_cases h : TileK10.valid (crd c s) n
  · rw [if_pos h, if_pos h]
    exact exists_intro (Φ := fun f => (((TileK10.outM (crd c s) n).view.loc (TileK10.thr d (crd c s)) ↦[(TileK10.outM (crd c s) n).view.set]{fullShare} f : sProp 𝕄))) g
  · rw [if_neg h, if_neg h]; exact BI.Entails.refl _

/-- The tasks' pieces of result q, each holding row q of f, are result q whole holding that row. -/
theorem o_pieces_row (d : Dev nD) (f : Buf (Elt F) (ℓx d)) :
    (bigSep Finset.univ fun c : Fin 2 => bigSep Finset.univ fun s : Fin 16 => bigSep (Finset.range 18) (TileK10.oQ d (crd c s) f))
      = (ℓo d ↦{fullShare} (Cert.Spec.row qK f : Buf (Elt F) (ℓo d)) : sProp 𝕄) := by
  rw [o_pieces d (Cert.Spec.row qK f : Buf (Elt F) (ℓo d))]
  rfl

omit [FloatOps F] in
/-- A separating conjunction over the call's grid of vector subcores, or of SparseCores, is one over sixteen, or two. -/
theorem bigSep_castSub (Φ : Fin 16 → sProp 𝕄) :
    (bigSep Finset.univ fun i : Fin ((K (F := F)).nSub qK) => Φ (i.cast (LaunchKI.nSub_eq qK))) = bigSep Finset.univ Φ :=
  bigSep_congr fun _ _ => congrArg Φ (Fin.ext rfl)
omit [FloatOps F] in
theorem bigSep_castCore (Φ : Fin 2 → sProp 𝕄) :
    (bigSep Finset.univ fun c : Fin ((K (F := F)).nCore qK) => Φ (c.cast (LaunchKI.nCore_eq qK))) = bigSep Finset.univ Φ :=
  bigSep_congr fun _ _ => congrArg Φ (Fin.ext rfl)

theorem goQ_eq (d : Dev nD) (c : Fin 2) (s : Fin 16) : LaunchKI.goQ m qK d c s = TileK10.goRes d (crd c s) (xt m d) := rfl
theorem tdQ_eq (d : Dev nD) (c : Fin 2) (s : Fin 16) : LaunchKI.tdQ m qK d c s = TileK10.tdRes d (crd c s) (xt m d) := rfl

/-- What the call takes for the two SparseCores: every task's pieces. -/
theorem st_eq (d : Dev nD) :
    (bigSep Finset.univ fun c : Fin ((K (F := F)).nCore qK) => (P m).st qK d c)
      = iprop((bigSep Finset.univ fun c : Fin 2 => bigSep Finset.univ fun s : Fin 16 => bigSep (Finset.range 18) (TileK10.xP d (crd c s) (xt m d)))
          ∗ (bigSep Finset.univ fun c : Fin 2 => bigSep Finset.univ fun s : Fin 16 => bigSep (Finset.range 18) (TileK10.oP (F := F) d (crd c s)))) := by
  have h1 : (bigSep Finset.univ fun c : Fin ((K (F := F)).nCore qK) => (P m).st qK d c)
      = bigSep Finset.univ fun c : Fin ((K (F := F)).nCore qK) =>
          (fun c' : Fin 2 => bigSep (Finset.univ : Finset (Fin 16)) fun s => LaunchKI.goQ m qK d c' s) (c.cast (LaunchKI.nCore_eq qK)) :=
    bigSep_congr fun c _ => bigSep_castSub (fun s => LaunchKI.goQ m qK d (c.cast (LaunchKI.nCore_eq qK)) s)
  rw [h1, bigSep_castCore (fun c' : Fin 2 => bigSep (Finset.univ : Finset (Fin 16)) fun s => LaunchKI.goQ m qK d c' s), ← bigSep_sep']
  refine bigSep_congr fun c _ => ?_
  rw [← bigSep_sep']
  refine bigSep_congr fun s _ => ?_
  rw [goQ_eq]; rfl

/-- What it hands back. -/
theorem dn_eq (d : Dev nD) :
    (bigSep Finset.univ fun c : Fin ((K (F := F)).nCore qK) => (P m).dn qK d c)
      = iprop((bigSep Finset.univ fun c : Fin 2 => bigSep Finset.univ fun s : Fin 16 => bigSep (Finset.range 18) (TileK10.xP d (crd c s) (xt m d)))
          ∗ (bigSep Finset.univ fun c : Fin 2 => bigSep Finset.univ fun s : Fin 16 => bigSep (Finset.range 18) (TileK10.oQ d (crd c s) (xt m d)))) := by
  have h1 : (bigSep Finset.univ fun c : Fin ((K (F := F)).nCore qK) => (P m).dn qK d c)
      = bigSep Finset.univ fun c : Fin ((K (F := F)).nCore qK) =>
          (fun c' : Fin 2 => bigSep (Finset.univ : Finset (Fin 16)) fun s => LaunchKI.tdQ m qK d c' s) (c.cast (LaunchKI.nCore_eq qK)) :=
    bigSep_congr fun c _ => bigSep_castSub (fun s => LaunchKI.tdQ m qK d (c.cast (LaunchKI.nCore_eq qK)) s)
  rw [h1, bigSep_castCore (fun c' : Fin 2 => bigSep (Finset.univ : Finset (Fin 16)) fun s => LaunchKI.tdQ m qK d c' s), ← bigSep_sep']
  refine bigSep_congr fun c _ => ?_
  rw [← bigSep_sep']
  refine bigSep_congr fun s _ => ?_
  rw [tdQ_eq]; rfl

omit [FloatOps F] in
theorem pair_sub : ({vx', vo'} : Finset (DevRef τ sig)) ⊆ tcRefs τ sig :=
  Finset.insert_subset (devRef_mem_tcRefs _) (Finset.singleton_subset_iff.mpr (devRef_mem_tcRefs _))

omit [FloatOps F] in
theorem held_pair (d : Dev nD) (V : Valuation τ sig (Elt F)) :
    (held (SparseCore.T d) ({vx', vo'} : Finset (DevRef τ sig)) V : sProp 𝕄) = iprop((ℓx d ↦{fullShare} V vx') ∗ (ℓo d ↦{fullShare} V vo')) := by
  unfold held; rw [SparseCore.bigSep_insert' (by decide), bigSep_singleton]

/-- What the call does to the TensorCore's buffers, as an operation on valuations: result q takes row q of the transpose. -/
abbrev opC (d : Dev nD) : HloOp τ sig (Elt F) := StableHlo.nullary main_v11 (Cert.Spec.row qK (xt m d))

/-- The call, from the TensorCore's buffers held at a valuation V whose transposed argument is the transpose: it
    leaves them at V but for result q, which holds row q of the transpose. -/
theorem step (κ : GSem nD τ sig → ℕ) (d : Dev nD) (V : Valuation τ sig (Elt F)) (hV : V vx' = xt m d) {Φ : PUnit → sProp 𝕄} :
    iprop((K (F := F)).ctx EH (P m) κ ∗ (K (F := F)).tcSt EH d qK.val ∗ held (SparseCore.T d) (tcRefs τ sig) V
        ∗ (((K (F := F)).tcSt EH d (qK.val + 1) ∗ held (SparseCore.T d) (tcRefs τ sig) ((opC m d).result V)) -∗ Φ ⟨⟩))
      ⊢ wp frame (wpE ((K (F := F)).defs (D (F := F))) 𝒱 (SparseCore.T d) none) Set.univ ((K (F := F)).run d qK) Φ := by
  rw [held_sub_split (SparseCore.T d) pair_sub V, held_pair, hV]
  iintro ⟨#Hctx, Hst, ⟨⟨Hx, Ho⟩, Hrest⟩, Hk⟩
  ihave Hx' := (pointsTo_split_subset (q := fullShare) (f := xt m d) (Finset.subset_univ (Pieces.rowSet qK.val : Finset (Idx (ℓx d))))).1 $$ Hx
  icases Hx' with ⟨Hrow, Hxrest⟩
  iapply ((K (F := F)).wp_run (D (F := F)) 𝒱 (EH := EH) (P := P m) κ d qK) $$ [Hst Hrow Ho Hk Hxrest Hrest]
  isplitr; · iexact Hctx
  isplitl [Hst]; · iexact Hst
  isplitl [Hrow Ho]
  · rw [st_eq]
    isplitl [Hrow]
    · iapply (Entails.of_eq (x_pieces d (xt m d))); iexact Hrow
    · iapply (o_pieces_ex d (V vo')); iexact Ho
  iintro ⟨Hst, Hdn⟩
  ihave Hdn' := (Entails.of_eq (dn_eq m d)) $$ Hdn
  icases Hdn' with ⟨Hrow, Ho⟩
  ihave Hrow' := (Entails.of_eq (x_pieces d (xt m d)).symm) $$ Hrow
  ihave Ho' := (Entails.of_eq (o_pieces_row d (xt m d))) $$ Ho
  ihave Hx := (pointsTo_split_subset (q := fullShare) (f := xt m d) (Finset.subset_univ (Pieces.rowSet qK.val : Finset (Idx (ℓx d))))).2 $$ [Hrow' Hxrest]
  · isplitl [Hrow']; · iexact Hrow'
    iexact Hxrest
  iapply Hk
  isplitl [Hst]; · iexact Hst
  rw [held_sub_split (SparseCore.T d) pair_sub ((opC m d).result V), held_pair,
    StableHlo.nullary_result_ne _ _ _ V (show (main_v0 : Ref sig .tc) ≠ main_v11 by decide), StableHlo.nullary_result, hV,
    held_congr (SparseCore.T d) (V := (opC m d).result V) (V' := V)
      (fun b hb => (opC m d).result_of_not_mem V (fun hw => (Finset.mem_sdiff.mp hb).2
        (Finset.mem_insert_of_mem (Finset.mem_singleton.mpr (Finset.mem_singleton.mp hw)))))]
  isplitl [Hx Ho']
  · isplitl [Hx]; · iexact Hx
    iexact Ho'
  · iexact Hrest

end Cert.Proof.CallK10

end
-- ==== Proof.CallPieces11.lean ====
/-
  The pieces of one call: row q of the transposed argument, held at some contents, is the 32 vector subcores' pieces of
  it; result q, held whole at some contents, is their pieces of it.
-/
import proofs.«206869_g37898791420194_cont_8to1_b_558_20_alg».proof.Proof.TileK11Defs
import proofs.«206869_g37898791420194_cont_8to1_b_558_20_alg».proof.Proof.LaunchPieces

noncomputable section

namespace Cert.Proof.CallK11

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic
open Cert.Proof.Pieces (crd)

variable {F : FTy → Type}

abbrev UU : Type := URounds (GSem nD τ sig) ℕ × Counters
local notation "𝕄" => MT nD τ sig (HIx 22) (Elt F) ℕ UU ℕ

/-- The call's number. -/
abbrev qK : Fin 22 := 11
theorem hq : qK.val < 22 := qK.isLt

abbrev vx' : DevRef τ sig := Proc.devRef .tc (main_v0 : Ref sig .tc)
abbrev vo' : DevRef τ sig := Proc.devRef .tc (main_v12 : Ref sig .tc)
abbrev ℓx (d : Dev nD) : Loc nD τ sig := (SparseCore.T d).loc main_v0
abbrev ℓo (d : Dev nD) : Loc nD τ sig := (SparseCore.T d).loc main_v12

variable [FloatOps F]

/-- Row q of the transposed argument, held at contents f, is the tasks' pieces of it. -/
theorem x_pieces (d : Dev nD) (f : Buf (Elt F) (ℓx d)) :
    (ℓx d ↦[(Pieces.rowSet qK.val : Finset (Idx (ℓx d)))]{fullShare} f : sProp 𝕄)
      = bigSep Finset.univ fun c : Fin 2 => bigSep Finset.univ fun s : Fin 16 => bigSep (Finset.range 18) (TileK11.xP d (crd c s) f) := by
  rw [← Pieces.in_cover qK.val hq, pointsTo_biUnion _ _ (Pieces.in_disj qK.val hq), Pieces.bigSep_tris]
  refine bigSep_congr fun c _ => bigSep_congr fun s _ => bigSep_congr fun n _ => ?_
  unfold TileK11.xP
  by_cases h : TileK11.valid (crd c s) n
  · rw [if_pos h, if_pos (show Pieces.pnum (c, s, n) < 500 from (TileK11.valid_iff _ _).mp h)]
    show _ = ((TileK11.inM (crd c s) n).view.loc (TileK11.thr d (crd c s)) ↦[(TileK11.inM (crd c s) n).view.set]{fullShare} f)
    rw [show (TileK11.inM (crd c s) n).view.set = Pieces.inSet qK.val hq (c, s, n) from View.set_slice_whole _ _]
  · rw [if_neg h, if_neg (show ¬ Pieces.pnum (c, s, n) < 500 from fun h' => h ((TileK11.valid_iff _ _).mpr h'))]
    rfl

/-- Result q, held whole at contents g, is the tasks' pieces of it at g. -/
theorem o_pieces (d : Dev nD) (g : Buf (Elt F) (ℓo d)) :
    (ℓo d ↦{fullShare} g : sProp 𝕄)
      = bigSep Finset.univ fun c : Fin 2 => bigSep Finset.univ fun s : Fin 16 => bigSep (Finset.range 18) fun n =>
          if TileK11.valid (crd c s) n then
            ((TileK11.outM (crd c s) n).view.loc (TileK11.thr d (crd c s)) ↦[(TileK11.outM (crd c s) n).view.set]{fullShare} g : sProp 𝕄)
          else iprop(emp) := by
  show (ℓo d ↦[(Finset.univ : Finset (Idx (ℓo d)))]{fullShare} g : sProp 𝕄) = _
  rw [← Pieces.out_cover, pointsTo_biUnion _ _ Pieces.out_disj, Pieces.bigSep_tris]
  refine bigSep_congr fun c _ => bigSep_congr fun s _ => bigSep_congr fun n _ => ?_
  by_cases h : TileK11.valid (crd c s) n
  · rw [if_pos h, if_pos (show Pieces.pnum (c, s, n) < 500 from (TileK11.valid_iff _ _).mp h)]
    rw [show (TileK11.outM (crd c s) n).view.set = Pieces.outSet (c, s, n) from View.set_slice_whole _ _]
  · rw [if_neg h, if_neg (show ¬ Pieces.pnum (c, s, n) < 500 from fun h' => h ((TileK11.valid_iff _ _).mpr h'))]
    rfl

end Cert.Proof.CallK11

end
-- ==== Proof.LaunchStep11.lean ====
/-
  One call of a copy kernel, run from the TensorCore: from the TensorCore's buffers held at a valuation whose transposed
  argument is the transpose, the call leaves them at the same valuation but for result q, which holds row q.
-/
import proofs.«206869_g37898791420194_cont_8to1_b_558_20_alg».proof.Proof.LaunchP
import proofs.«206869_g37898791420194_cont_8to1_b_558_20_alg».proof.Proof.CallPieces11

noncomputable section

namespace Cert.Proof.CallK11

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic
open Idealize.ShloMosaic.StableHlo (tcRefs devRef_mem_tcRefs held_sub_split held_congr)
open Cert.Proof.Pieces (crd)
open Cert.Proof.LaunchKI (K D 𝒱 𝒱₀ v₀ EH P xt)

variable {F : FTy → Type}

local notation "𝕄" => MT nD τ sig (HIx 22) (Elt F) ℕ UU ℕ

variable (m : (ℓ : Loc nD τ sig) → Buf (Elt F) ℓ)
variable [FloatOps F]

/-- Result q held whole at some contents gives every task its pieces of it, each at some contents. -/
theorem o_pieces_ex (d : Dev nD) (g : Buf (Elt F) (ℓo d)) :
    (ℓo d ↦{fullShare} g : sProp 𝕄)
      ⊢ bigSep Finset.univ fun c : Fin 2 => bigSep Finset.univ fun s : Fin 16 => bigSep (Finset.range 18) (TileK11.oP (F := F) d (crd c s)) := by
  rw [o_pieces d g]
  refine bigSep_mono fun c _ => bigSep_mono fun s _ => bigSep_mono fun n _ => ?_
  unfold TileK11.oP
  by_cases h : TileK11.valid (crd c s) n
  · rw [if_pos h, if_pos h]
    exact exists_intro (Φ := fun f => (((TileK11.outM (crd c s) n).view.loc (TileK11.thr d (crd c s)) ↦[(TileK11.outM (crd c s) n).view.set]{fullShare} f : sProp 𝕄))) g
  · rw [if_neg h, if_neg h]; exact BI.Entails.refl _

/-- The tasks' pieces of result q, each holding row q of f, are result q whole holding that row. -/
theorem o_pieces_row (d : Dev nD) (f : Buf (Elt F) (ℓx d)) :
    (bigSep Finset.univ fun c : Fin 2 => bigSep Finset.univ fun s : Fin 16 => bigSep (Finset.range 18) (TileK11.oQ d (crd c s) f))
      = (ℓo d ↦{fullShare} (Cert.Spec.row qK f : Buf (Elt F) (ℓo d)) : sProp 𝕄) := by
  rw [o_pieces d (Cert.Spec.row qK f : Buf (Elt F) (ℓo d))]
  rfl

omit [FloatOps F] in
/-- A separating conjunction over the call's grid of vector subcores, or of SparseCores, is one over sixteen, or two. -/
theorem bigSep_castSub (Φ : Fin 16 → sProp 𝕄) :
    (bigSep Finset.univ fun i : Fin ((K (F := F)).nSub qK) => Φ (i.cast (LaunchKI.nSub_eq qK))) = bigSep Finset.univ Φ :=
  bigSep_congr fun _ _ => congrArg Φ (Fin.ext rfl)
omit [FloatOps F] in
theorem bigSep_castCore (Φ : Fin 2 → sProp 𝕄) :
    (bigSep Finset.univ fun c : Fin ((K (F := F)).nCore qK) => Φ (c.cast (LaunchKI.nCore_eq qK))) = bigSep Finset.univ Φ :=
  bigSep_congr fun _ _ => congrArg Φ (Fin.ext rfl)

theorem goQ_eq (d : Dev nD) (c : Fin 2) (s : Fin 16) : LaunchKI.goQ m qK d c s = TileK11.goRes d (crd c s) (xt m d) := rfl
theorem tdQ_eq (d : Dev nD) (c : Fin 2) (s : Fin 16) : LaunchKI.tdQ m qK d c s = TileK11.tdRes d (crd c s) (xt m d) := rfl

/-- What the call takes for the two SparseCores: every task's pieces. -/
theorem st_eq (d : Dev nD) :
    (bigSep Finset.univ fun c : Fin ((K (F := F)).nCore qK) => (P m).st qK d c)
      = iprop((bigSep Finset.univ fun c : Fin 2 => bigSep Finset.univ fun s : Fin 16 => bigSep (Finset.range 18) (TileK11.xP d (crd c s) (xt m d)))
          ∗ (bigSep Finset.univ fun c : Fin 2 => bigSep Finset.univ fun s : Fin 16 => bigSep (Finset.range 18) (TileK11.oP (F := F) d (crd c s)))) := by
  have h1 : (bigSep Finset.univ fun c : Fin ((K (F := F)).nCore qK) => (P m).st qK d c)
      = bigSep Finset.univ fun c : Fin ((K (F := F)).nCore qK) =>
          (fun c' : Fin 2 => bigSep (Finset.univ : Finset (Fin 16)) fun s => LaunchKI.goQ m qK d c' s) (c.cast (LaunchKI.nCore_eq qK)) :=
    bigSep_congr fun c _ => bigSep_castSub (fun s => LaunchKI.goQ m qK d (c.cast (LaunchKI.nCore_eq qK)) s)
  rw [h1, bigSep_castCore (fun c' : Fin 2 => bigSep (Finset.univ : Finset (Fin 16)) fun s => LaunchKI.goQ m qK d c' s), ← bigSep_sep']
  refine bigSep_congr fun c _ => ?_
  rw [← bigSep_sep']
  refine bigSep_congr fun s _ => ?_
  rw [goQ_eq]; rfl

/-- What it hands back. -/
theorem dn_eq (d : Dev nD) :
    (bigSep Finset.univ fun c : Fin ((K (F := F)).nCore qK) => (P m).dn qK d c)
      = iprop((bigSep Finset.univ fun c : Fin 2 => bigSep Finset.univ fun s : Fin 16 => bigSep (Finset.range 18) (TileK11.xP d (crd c s) (xt m d)))
          ∗ (bigSep Finset.univ fun c : Fin 2 => bigSep Finset.univ fun s : Fin 16 => bigSep (Finset.range 18) (TileK11.oQ d (crd c s) (xt m d)))) := by
  have h1 : (bigSep Finset.univ fun c : Fin ((K (F := F)).nCore qK) => (P m).dn qK d c)
      = bigSep Finset.univ fun c : Fin ((K (F := F)).nCore qK) =>
          (fun c' : Fin 2 => bigSep (Finset.univ : Finset (Fin 16)) fun s => LaunchKI.tdQ m qK d c' s) (c.cast (LaunchKI.nCore_eq qK)) :=
    bigSep_congr fun c _ => bigSep_castSub (fun s => LaunchKI.tdQ m qK d (c.cast (LaunchKI.nCore_eq qK)) s)
  rw [h1, bigSep_castCore (fun c' : Fin 2 => bigSep (Finset.univ : Finset (Fin 16)) fun s => LaunchKI.tdQ m qK d c' s), ← bigSep_sep']
  refine bigSep_congr fun c _ => ?_
  rw [← bigSep_sep']
  refine bigSep_congr fun s _ => ?_
  rw [tdQ_eq]; rfl

omit [FloatOps F] in
theorem pair_sub : ({vx', vo'} : Finset (DevRef τ sig)) ⊆ tcRefs τ sig :=
  Finset.insert_subset (devRef_mem_tcRefs _) (Finset.singleton_subset_iff.mpr (devRef_mem_tcRefs _))

omit [FloatOps F] in
theorem held_pair (d : Dev nD) (V : Valuation τ sig (Elt F)) :
    (held (SparseCore.T d) ({vx', vo'} : Finset (DevRef τ sig)) V : sProp 𝕄) = iprop((ℓx d ↦{fullShare} V vx') ∗ (ℓo d ↦{fullShare} V vo')) := by
  unfold held; rw [SparseCore.bigSep_insert' (by decide), bigSep_singleton]

/-- What the call does to the TensorCore's buffers, as an operation on valuations: result q takes row q of the transpose. -/
abbrev opC (d : Dev nD) : HloOp τ sig (Elt F) := StableHlo.nullary main_v12 (Cert.Spec.row qK (xt m d))

/-- The call, from the TensorCore's buffers held at a valuation V whose transposed argument is the transpose: it
    leaves them at V but for result q, which holds row q of the transpose. -/
theorem step (κ : GSem nD τ sig → ℕ) (d : Dev nD) (V : Valuation τ sig (Elt F)) (hV : V vx' = xt m d) {Φ : PUnit → sProp 𝕄} :
    iprop((K (F := F)).ctx EH (P m) κ ∗ (K (F := F)).tcSt EH d qK.val ∗ held (SparseCore.T d) (tcRefs τ sig) V
        ∗ (((K (F := F)).tcSt EH d (qK.val + 1) ∗ held (SparseCore.T d) (tcRefs τ sig) ((opC m d).result V)) -∗ Φ ⟨⟩))
      ⊢ wp frame (wpE ((K (F := F)).defs (D (F := F))) 𝒱 (SparseCore.T d) none) Set.univ ((K (F := F)).run d qK) Φ := by
  rw [held_sub_split (SparseCore.T d) pair_sub V, held_pair, hV]
  iintro ⟨#Hctx, Hst, ⟨⟨Hx, Ho⟩, Hrest⟩, Hk⟩
  ihave Hx' := (pointsTo_split_subset (q := fullShare) (f := xt m d) (Finset.subset_univ (Pieces.rowSet qK.val : Finset (Idx (ℓx d))))).1 $$ Hx
  icases Hx' with ⟨Hrow, Hxrest⟩
  iapply ((K (F := F)).wp_run (D (F := F)) 𝒱 (EH := EH) (P := P m) κ d qK) $$ [Hst Hrow Ho Hk Hxrest Hrest]
  isplitr; · iexact Hctx
  isplitl [Hst]; · iexact Hst
  isplitl [Hrow Ho]
  · rw [st_eq]
    isplitl [Hrow]
    · iapply (Entails.of_eq (x_pieces d (xt m d))); iexact Hrow
    · iapply (o_pieces_ex d (V vo')); iexact Ho
  iintro ⟨Hst, Hdn⟩
  ihave Hdn' := (Entails.of_eq (dn_eq m d)) $$ Hdn
  icases Hdn' with ⟨Hrow, Ho⟩
  ihave Hrow' := (Entails.of_eq (x_pieces d (xt m d)).symm) $$ Hrow
  ihave Ho' := (Entails.of_eq (o_pieces_row d (xt m d))) $$ Ho
  ihave Hx := (pointsTo_split_subset (q := fullShare) (f := xt m d) (Finset.subset_univ (Pieces.rowSet qK.val : Finset (Idx (ℓx d))))).2 $$ [Hrow' Hxrest]
  · isplitl [Hrow']; · iexact Hrow'
    iexact Hxrest
  iapply Hk
  isplitl [Hst]; · iexact Hst
  rw [held_sub_split (SparseCore.T d) pair_sub ((opC m d).result V), held_pair,
    StableHlo.nullary_result_ne _ _ _ V (show (main_v0 : Ref sig .tc) ≠ main_v12 by decide), StableHlo.nullary_result, hV,
    held_congr (SparseCore.T d) (V := (opC m d).result V) (V' := V)
      (fun b hb => (opC m d).result_of_not_mem V (fun hw => (Finset.mem_sdiff.mp hb).2
        (Finset.mem_insert_of_mem (Finset.mem_singleton.mpr (Finset.mem_singleton.mp hw)))))]
  isplitl [Hx Ho']
  · isplitl [Hx]; · iexact Hx
    iexact Ho'
  · iexact Hrest

end Cert.Proof.CallK11

end
-- ==== Proof.CallPieces12.lean ====
/-
  The pieces of one call: row q of the transposed argument, held at some contents, is the 32 vector subcores' pieces of
  it; result q, held whole at some contents, is their pieces of it.
-/
import proofs.«206869_g37898791420194_cont_8to1_b_558_20_alg».proof.Proof.TileK12Defs
import proofs.«206869_g37898791420194_cont_8to1_b_558_20_alg».proof.Proof.LaunchPieces

noncomputable section

namespace Cert.Proof.CallK12

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic
open Cert.Proof.Pieces (crd)

variable {F : FTy → Type}

abbrev UU : Type := URounds (GSem nD τ sig) ℕ × Counters
local notation "𝕄" => MT nD τ sig (HIx 22) (Elt F) ℕ UU ℕ

/-- The call's number. -/
abbrev qK : Fin 22 := 12
theorem hq : qK.val < 22 := qK.isLt

abbrev vx' : DevRef τ sig := Proc.devRef .tc (main_v0 : Ref sig .tc)
abbrev vo' : DevRef τ sig := Proc.devRef .tc (main_v13 : Ref sig .tc)
abbrev ℓx (d : Dev nD) : Loc nD τ sig := (SparseCore.T d).loc main_v0
abbrev ℓo (d : Dev nD) : Loc nD τ sig := (SparseCore.T d).loc main_v13

variable [FloatOps F]

/-- Row q of the transposed argument, held at contents f, is the tasks' pieces of it. -/
theorem x_pieces (d : Dev nD) (f : Buf (Elt F) (ℓx d)) :
    (ℓx d ↦[(Pieces.rowSet qK.val : Finset (Idx (ℓx d)))]{fullShare} f : sProp 𝕄)
      = bigSep Finset.univ fun c : Fin 2 => bigSep Finset.univ fun s : Fin 16 => bigSep (Finset.range 18) (TileK12.xP d (crd c s) f) := by
  rw [← Pieces.in_cover qK.val hq, pointsTo_biUnion _ _ (Pieces.in_disj qK.val hq), Pieces.bigSep_tris]
  refine bigSep_congr fun c _ => bigSep_congr fun s _ => bigSep_congr fun n _ => ?_
  unfold TileK12.xP
  by_cases h : TileK12.valid (crd c s) n
  · rw [if_pos h, if_pos (show Pieces.pnum (c, s, n) < 500 from (TileK12.valid_iff _ _).mp h)]
    show _ = ((TileK12.inM (crd c s) n).view.loc (TileK12.thr d (crd c s)) ↦[(TileK12.inM (crd c s) n).view.set]{fullShare} f)
    rw [show (TileK12.inM (crd c s) n).view.set = Pieces.inSet qK.val hq (c, s, n) from View.set_slice_whole _ _]
  · rw [if_neg h, if_neg (show ¬ Pieces.pnum (c, s, n) < 500 from fun h' => h ((TileK12.valid_iff _ _).mpr h'))]
    rfl

/-- Result q, held whole at contents g, is the tasks' pieces of it at g. -/
theorem o_pieces (d : Dev nD) (g : Buf (Elt F) (ℓo d)) :
    (ℓo d ↦{fullShare} g : sProp 𝕄)
      = bigSep Finset.univ fun c : Fin 2 => bigSep Finset.univ fun s : Fin 16 => bigSep (Finset.range 18) fun n =>
          if TileK12.valid (crd c s) n then
            ((TileK12.outM (crd c s) n).view.loc (TileK12.thr d (crd c s)) ↦[(TileK12.outM (crd c s) n).view.set]{fullShare} g : sProp 𝕄)
          else iprop(emp) := by
  show (ℓo d ↦[(Finset.univ : Finset (Idx (ℓo d)))]{fullShare} g : sProp 𝕄) = _
  rw [← Pieces.out_cover, pointsTo_biUnion _ _ Pieces.out_disj, Pieces.bigSep_tris]
  refine bigSep_congr fun c _ => bigSep_congr fun s _ => bigSep_congr fun n _ => ?_
  by_cases h : TileK12.valid (crd c s) n
  · rw [if_pos h, if_pos (show Pieces.pnum (c, s, n) < 500 from (TileK12.valid_iff _ _).mp h)]
    rw [show (TileK12.outM (crd c s) n).view.set = Pieces.outSet (c, s, n) from View.set_slice_whole _ _]
  · rw [if_neg h, if_neg (show ¬ Pieces.pnum (c, s, n) < 500 from fun h' => h ((TileK12.valid_iff _ _).mpr h'))]
    rfl

end Cert.Proof.CallK12

end
-- ==== Proof.LaunchStep12.lean ====
/-
  One call of a copy kernel, run from the TensorCore: from the TensorCore's buffers held at a valuation whose transposed
  argument is the transpose, the call leaves them at the same valuation but for result q, which holds row q.
-/
import proofs.«206869_g37898791420194_cont_8to1_b_558_20_alg».proof.Proof.LaunchP
import proofs.«206869_g37898791420194_cont_8to1_b_558_20_alg».proof.Proof.CallPieces12

noncomputable section

namespace Cert.Proof.CallK12

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic
open Idealize.ShloMosaic.StableHlo (tcRefs devRef_mem_tcRefs held_sub_split held_congr)
open Cert.Proof.Pieces (crd)
open Cert.Proof.LaunchKI (K D 𝒱 𝒱₀ v₀ EH P xt)

variable {F : FTy → Type}

local notation "𝕄" => MT nD τ sig (HIx 22) (Elt F) ℕ UU ℕ

variable (m : (ℓ : Loc nD τ sig) → Buf (Elt F) ℓ)
variable [FloatOps F]

/-- Result q held whole at some contents gives every task its pieces of it, each at some contents. -/
theorem o_pieces_ex (d : Dev nD) (g : Buf (Elt F) (ℓo d)) :
    (ℓo d ↦{fullShare} g : sProp 𝕄)
      ⊢ bigSep Finset.univ fun c : Fin 2 => bigSep Finset.univ fun s : Fin 16 => bigSep (Finset.range 18) (TileK12.oP (F := F) d (crd c s)) := by
  rw [o_pieces d g]
  refine bigSep_mono fun c _ => bigSep_mono fun s _ => bigSep_mono fun n _ => ?_
  unfold TileK12.oP
  by_cases h : TileK12.valid (crd c s) n
  · rw [if_pos h, if_pos h]
    exact exists_intro (Φ := fun f => (((TileK12.outM (crd c s) n).view.loc (TileK12.thr d (crd c s)) ↦[(TileK12.outM (crd c s) n).view.set]{fullShare} f : sProp 𝕄))) g
  · rw [if_neg h, if_neg h]; exact BI.Entails.refl _

/-- The tasks' pieces of result q, each holding row q of f, are result q whole holding that row. -/
theorem o_pieces_row (d : Dev nD) (f : Buf (Elt F) (ℓx d)) :
    (bigSep Finset.univ fun c : Fin 2 => bigSep Finset.univ fun s : Fin 16 => bigSep (Finset.range 18) (TileK12.oQ d (crd c s) f))
      = (ℓo d ↦{fullShare} (Cert.Spec.row qK f : Buf (Elt F) (ℓo d)) : sProp 𝕄) := by
  rw [o_pieces d (Cert.Spec.row qK f : Buf (Elt F) (ℓo d))]
  rfl

omit [FloatOps F] in
/-- A separating conjunction over the call's grid of vector subcores, or of SparseCores, is one over sixteen, or two. -/
theorem bigSep_castSub (Φ : Fin 16 → sProp 𝕄) :
    (bigSep Finset.univ fun i : Fin ((K (F := F)).nSub qK) => Φ (i.cast (LaunchKI.nSub_eq qK))) = bigSep Finset.univ Φ :=
  bigSep_congr fun _ _ => congrArg Φ (Fin.ext rfl)
omit [FloatOps F] in
theorem bigSep_castCore (Φ : Fin 2 → sProp 𝕄) :
    (bigSep Finset.univ fun c : Fin ((K (F := F)).nCore qK) => Φ (c.cast (LaunchKI.nCore_eq qK))) = bigSep Finset.univ Φ :=
  bigSep_congr fun _ _ => congrArg Φ (Fin.ext rfl)

theorem goQ_eq (d : Dev nD) (c : Fin 2) (s : Fin 16) : LaunchKI.goQ m qK d c s = TileK12.goRes d (crd c s) (xt m d) := rfl
theorem tdQ_eq (d : Dev nD) (c : Fin 2) (s : Fin 16) : LaunchKI.tdQ m qK d c s = TileK12.tdRes d (crd c s) (xt m d) := rfl

/-- What the call takes for the two SparseCores: every task's pieces. -/
theorem st_eq (d : Dev nD) :
    (bigSep Finset.univ fun c : Fin ((K (F := F)).nCore qK) => (P m).st qK d c)
      = iprop((bigSep Finset.univ fun c : Fin 2 => bigSep Finset.univ fun s : Fin 16 => bigSep (Finset.range 18) (TileK12.xP d (crd c s) (xt m d)))
          ∗ (bigSep Finset.univ fun c : Fin 2 => bigSep Finset.univ fun s : Fin 16 => bigSep (Finset.range 18) (TileK12.oP (F := F) d (crd c s)))) := by
  have h1 : (bigSep Finset.univ fun c : Fin ((K (F := F)).nCore qK) => (P m).st qK d c)
      = bigSep Finset.univ fun c : Fin ((K (F := F)).nCore qK) =>
          (fun c' : Fin 2 => bigSep (Finset.univ : Finset (Fin 16)) fun s => LaunchKI.goQ m qK d c' s) (c.cast (LaunchKI.nCore_eq qK)) :=
    bigSep_congr fun c _ => bigSep_castSub (fun s => LaunchKI.goQ m qK d (c.cast (LaunchKI.nCore_eq qK)) s)
  rw [h1, bigSep_castCore (fun c' : Fin 2 => bigSep (Finset.univ : Finset (Fin 16)) fun s => LaunchKI.goQ m qK d c' s), ← bigSep_sep']
  refine bigSep_congr fun c _ => ?_
  rw [← bigSep_sep']
  refine bigSep_congr fun s _ => ?_
  rw [goQ_eq]; rfl

/-- What it hands back. -/
theorem dn_eq (d : Dev nD) :
    (bigSep Finset.univ fun c : Fin ((K (F := F)).nCore qK) => (P m).dn qK d c)
      = iprop((bigSep Finset.univ fun c : Fin 2 => bigSep Finset.univ fun s : Fin 16 => bigSep (Finset.range 18) (TileK12.xP d (crd c s) (xt m d)))
          ∗ (bigSep Finset.univ fun c : Fin 2 => bigSep Finset.univ fun s : Fin 16 => bigSep (Finset.range 18) (TileK12.oQ d (crd c s) (xt m d)))) := by
  have h1 : (bigSep Finset.univ fun c : Fin ((K (F := F)).nCore qK) => (P m).dn qK d c)
      = bigSep Finset.univ fun c : Fin ((K (F := F)).nCore qK) =>
          (fun c' : Fin 2 => bigSep (Finset.univ : Finset (Fin 16)) fun s => LaunchKI.tdQ m qK d c' s) (c.cast (LaunchKI.nCore_eq qK)) :=
    bigSep_congr fun c _ => bigSep_castSub (fun s => LaunchKI.tdQ m qK d (c.cast (LaunchKI.nCore_eq qK)) s)
  rw [h1, bigSep_castCore (fun c' : Fin 2 => bigSep (Finset.univ : Finset (Fin 16)) fun s => LaunchKI.tdQ m qK d c' s), ← bigSep_sep']
  refine bigSep_congr fun c _ => ?_
  rw [← bigSep_sep']
  refine bigSep_congr fun s _ => ?_
  rw [tdQ_eq]; rfl

omit [FloatOps F] in
theorem pair_sub : ({vx', vo'} : Finset (DevRef τ sig)) ⊆ tcRefs τ sig :=
  Finset.insert_subset (devRef_mem_tcRefs _) (Finset.singleton_subset_iff.mpr (devRef_mem_tcRefs _))

omit [FloatOps F] in
theorem held_pair (d : Dev nD) (V : Valuation τ sig (Elt F)) :
    (held (SparseCore.T d) ({vx', vo'} : Finset (DevRef τ sig)) V : sProp 𝕄) = iprop((ℓx d ↦{fullShare} V vx') ∗ (ℓo d ↦{fullShare} V vo')) := by
  unfold held; rw [SparseCore.bigSep_insert' (by decide), bigSep_singleton]

/-- What the call does to the TensorCore's buffers, as an operation on valuations: result q takes row q of the transpose. -/
abbrev opC (d : Dev nD) : HloOp τ sig (Elt F) := StableHlo.nullary main_v13 (Cert.Spec.row qK (xt m d))

/-- The call, from the TensorCore's buffers held at a valuation V whose transposed argument is the transpose: it
    leaves them at V but for result q, which holds row q of the transpose. -/
theorem step (κ : GSem nD τ sig → ℕ) (d : Dev nD) (V : Valuation τ sig (Elt F)) (hV : V vx' = xt m d) {Φ : PUnit → sProp 𝕄} :
    iprop((K (F := F)).ctx EH (P m) κ ∗ (K (F := F)).tcSt EH d qK.val ∗ held (SparseCore.T d) (tcRefs τ sig) V
        ∗ (((K (F := F)).tcSt EH d (qK.val + 1) ∗ held (SparseCore.T d) (tcRefs τ sig) ((opC m d).result V)) -∗ Φ ⟨⟩))
      ⊢ wp frame (wpE ((K (F := F)).defs (D (F := F))) 𝒱 (SparseCore.T d) none) Set.univ ((K (F := F)).run d qK) Φ := by
  rw [held_sub_split (SparseCore.T d) pair_sub V, held_pair, hV]
  iintro ⟨#Hctx, Hst, ⟨⟨Hx, Ho⟩, Hrest⟩, Hk⟩
  ihave Hx' := (pointsTo_split_subset (q := fullShare) (f := xt m d) (Finset.subset_univ (Pieces.rowSet qK.val : Finset (Idx (ℓx d))))).1 $$ Hx
  icases Hx' with ⟨Hrow, Hxrest⟩
  iapply ((K (F := F)).wp_run (D (F := F)) 𝒱 (EH := EH) (P := P m) κ d qK) $$ [Hst Hrow Ho Hk Hxrest Hrest]
  isplitr; · iexact Hctx
  isplitl [Hst]; · iexact Hst
  isplitl [Hrow Ho]
  · rw [st_eq]
    isplitl [Hrow]
    · iapply (Entails.of_eq (x_pieces d (xt m d))); iexact Hrow
    · iapply (o_pieces_ex d (V vo')); iexact Ho
  iintro ⟨Hst, Hdn⟩
  ihave Hdn' := (Entails.of_eq (dn_eq m d)) $$ Hdn
  icases Hdn' with ⟨Hrow, Ho⟩
  ihave Hrow' := (Entails.of_eq (x_pieces d (xt m d)).symm) $$ Hrow
  ihave Ho' := (Entails.of_eq (o_pieces_row d (xt m d))) $$ Ho
  ihave Hx := (pointsTo_split_subset (q := fullShare) (f := xt m d) (Finset.subset_univ (Pieces.rowSet qK.val : Finset (Idx (ℓx d))))).2 $$ [Hrow' Hxrest]
  · isplitl [Hrow']; · iexact Hrow'
    iexact Hxrest
  iapply Hk
  isplitl [Hst]; · iexact Hst
  rw [held_sub_split (SparseCore.T d) pair_sub ((opC m d).result V), held_pair,
    StableHlo.nullary_result_ne _ _ _ V (show (main_v0 : Ref sig .tc) ≠ main_v13 by decide), StableHlo.nullary_result, hV,
    held_congr (SparseCore.T d) (V := (opC m d).result V) (V' := V)
      (fun b hb => (opC m d).result_of_not_mem V (fun hw => (Finset.mem_sdiff.mp hb).2
        (Finset.mem_insert_of_mem (Finset.mem_singleton.mpr (Finset.mem_singleton.mp hw)))))]
  isplitl [Hx Ho']
  · isplitl [Hx]; · iexact Hx
    iexact Ho'
  · iexact Hrest

end Cert.Proof.CallK12

end
-- ==== Proof.CallPieces13.lean ====
/-
  The pieces of one call: row q of the transposed argument, held at some contents, is the 32 vector subcores' pieces of
  it; result q, held whole at some contents, is their pieces of it.
-/
import proofs.«206869_g37898791420194_cont_8to1_b_558_20_alg».proof.Proof.TileK13Defs
import proofs.«206869_g37898791420194_cont_8to1_b_558_20_alg».proof.Proof.LaunchPieces

noncomputable section

namespace Cert.Proof.CallK13

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic
open Cert.Proof.Pieces (crd)

variable {F : FTy → Type}

abbrev UU : Type := URounds (GSem nD τ sig) ℕ × Counters
local notation "𝕄" => MT nD τ sig (HIx 22) (Elt F) ℕ UU ℕ

/-- The call's number. -/
abbrev qK : Fin 22 := 13
theorem hq : qK.val < 22 := qK.isLt

abbrev vx' : DevRef τ sig := Proc.devRef .tc (main_v0 : Ref sig .tc)
abbrev vo' : DevRef τ sig := Proc.devRef .tc (main_v14 : Ref sig .tc)
abbrev ℓx (d : Dev nD) : Loc nD τ sig := (SparseCore.T d).loc main_v0
abbrev ℓo (d : Dev nD) : Loc nD τ sig := (SparseCore.T d).loc main_v14

variable [FloatOps F]

/-- Row q of the transposed argument, held at contents f, is the tasks' pieces of it. -/
theorem x_pieces (d : Dev nD) (f : Buf (Elt F) (ℓx d)) :
    (ℓx d ↦[(Pieces.rowSet qK.val : Finset (Idx (ℓx d)))]{fullShare} f : sProp 𝕄)
      = bigSep Finset.univ fun c : Fin 2 => bigSep Finset.univ fun s : Fin 16 => bigSep (Finset.range 18) (TileK13.xP d (crd c s) f) := by
  rw [← Pieces.in_cover qK.val hq, pointsTo_biUnion _ _ (Pieces.in_disj qK.val hq), Pieces.bigSep_tris]
  refine bigSep_congr fun c _ => bigSep_congr fun s _ => bigSep_congr fun n _ => ?_
  unfold TileK13.xP
  by_cases h : TileK13.valid (crd c s) n
  · rw [if_pos h, if_pos (show Pieces.pnum (c, s, n) < 500 from (TileK13.valid_iff _ _).mp h)]
    show _ = ((TileK13.inM (crd c s) n).view.loc (TileK13.thr d (crd c s)) ↦[(TileK13.inM (crd c s) n).view.set]{fullShare} f)
    rw [show (TileK13.inM (crd c s) n).view.set = Pieces.inSet qK.val hq (c, s, n) from View.set_slice_whole _ _]
  · rw [if_neg h, if_neg (show ¬ Pieces.pnum (c, s, n) < 500 from fun h' => h ((TileK13.valid_iff _ _).mpr h'))]
    rfl

/-- Result q, held whole at contents g, is the tasks' pieces of it at g. -/
theorem o_pieces (d : Dev nD) (g : Buf (Elt F) (ℓo d)) :
    (ℓo d ↦{fullShare} g : sProp 𝕄)
      = bigSep Finset.univ fun c : Fin 2 => bigSep Finset.univ fun s : Fin 16 => bigSep (Finset.range 18) fun n =>
          if TileK13.valid (crd c s) n then
            ((TileK13.outM (crd c s) n).view.loc (TileK13.thr d (crd c s)) ↦[(TileK13.outM (crd c s) n).view.set]{fullShare} g : sProp 𝕄)
          else iprop(emp) := by
  show (ℓo d ↦[(Finset.univ : Finset (Idx (ℓo d)))]{fullShare} g : sProp 𝕄) = _
  rw [← Pieces.out_cover, pointsTo_biUnion _ _ Pieces.out_disj, Pieces.bigSep_tris]
  refine bigSep_congr fun c _ => bigSep_congr fun s _ => bigSep_congr fun n _ => ?_
  by_cases h : TileK13.valid (crd c s) n
  · rw [if_pos h, if_pos (show Pieces.pnum (c, s, n) < 500 from (TileK13.valid_iff _ _).mp h)]
    rw [show (TileK13.outM (crd c s) n).view.set = Pieces.outSet (c, s, n) from View.set_slice_whole _ _]
  · rw [if_neg h, if_neg (show ¬ Pieces.pnum (c, s, n) < 500 from fun h' => h ((TileK13.valid_iff _ _).mpr h'))]
    rfl

end Cert.Proof.CallK13

end
-- ==== Proof.LaunchStep13.lean ====
/-
  One call of a copy kernel, run from the TensorCore: from the TensorCore's buffers held at a valuation whose transposed
  argument is the transpose, the call leaves them at the same valuation but for result q, which holds row q.
-/
import proofs.«206869_g37898791420194_cont_8to1_b_558_20_alg».proof.Proof.LaunchP
import proofs.«206869_g37898791420194_cont_8to1_b_558_20_alg».proof.Proof.CallPieces13

noncomputable section

namespace Cert.Proof.CallK13

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic
open Idealize.ShloMosaic.StableHlo (tcRefs devRef_mem_tcRefs held_sub_split held_congr)
open Cert.Proof.Pieces (crd)
open Cert.Proof.LaunchKI (K D 𝒱 𝒱₀ v₀ EH P xt)

variable {F : FTy → Type}

local notation "𝕄" => MT nD τ sig (HIx 22) (Elt F) ℕ UU ℕ

variable (m : (ℓ : Loc nD τ sig) → Buf (Elt F) ℓ)
variable [FloatOps F]

/-- Result q held whole at some contents gives every task its pieces of it, each at some contents. -/
theorem o_pieces_ex (d : Dev nD) (g : Buf (Elt F) (ℓo d)) :
    (ℓo d ↦{fullShare} g : sProp 𝕄)
      ⊢ bigSep Finset.univ fun c : Fin 2 => bigSep Finset.univ fun s : Fin 16 => bigSep (Finset.range 18) (TileK13.oP (F := F) d (crd c s)) := by
  rw [o_pieces d g]
  refine bigSep_mono fun c _ => bigSep_mono fun s _ => bigSep_mono fun n _ => ?_
  unfold TileK13.oP
  by_cases h : TileK13.valid (crd c s) n
  · rw [if_pos h, if_pos h]
    exact exists_intro (Φ := fun f => (((TileK13.outM (crd c s) n).view.loc (TileK13.thr d (crd c s)) ↦[(TileK13.outM (crd c s) n).view.set]{fullShare} f : sProp 𝕄))) g
  · rw [if_neg h, if_neg h]; exact BI.Entails.refl _

/-- The tasks' pieces of result q, each holding row q of f, are result q whole holding that row. -/
theorem o_pieces_row (d : Dev nD) (f : Buf (Elt F) (ℓx d)) :
    (bigSep Finset.univ fun c : Fin 2 => bigSep Finset.univ fun s : Fin 16 => bigSep (Finset.range 18) (TileK13.oQ d (crd c s) f))
      = (ℓo d ↦{fullShare} (Cert.Spec.row qK f : Buf (Elt F) (ℓo d)) : sProp 𝕄) := by
  rw [o_pieces d (Cert.Spec.row qK f : Buf (Elt F) (ℓo d))]
  rfl

omit [FloatOps F] in
/-- A separating conjunction over the call's grid of vector subcores, or of SparseCores, is one over sixteen, or two. -/
theorem bigSep_castSub (Φ : Fin 16 → sProp 𝕄) :
    (bigSep Finset.univ fun i : Fin ((K (F := F)).nSub qK) => Φ (i.cast (LaunchKI.nSub_eq qK))) = bigSep Finset.univ Φ :=
  bigSep_congr fun _ _ => congrArg Φ (Fin.ext rfl)
omit [FloatOps F] in
theorem bigSep_castCore (Φ : Fin 2 → sProp 𝕄) :
    (bigSep Finset.univ fun c : Fin ((K (F := F)).nCore qK) => Φ (c.cast (LaunchKI.nCore_eq qK))) = bigSep Finset.univ Φ :=
  bigSep_congr fun _ _ => congrArg Φ (Fin.ext rfl)

theorem goQ_eq (d : Dev nD) (c : Fin 2) (s : Fin 16) : LaunchKI.goQ m qK d c s = TileK13.goRes d (crd c s) (xt m d) := rfl
theorem tdQ_eq (d : Dev nD) (c : Fin 2) (s : Fin 16) : LaunchKI.tdQ m qK d c s = TileK13.tdRes d (crd c s) (xt m d) := rfl

/-- What the call takes for the two SparseCores: every task's pieces. -/
theorem st_eq (d : Dev nD) :
    (bigSep Finset.univ fun c : Fin ((K (F := F)).nCore qK) => (P m).st qK d c)
      = iprop((bigSep Finset.univ fun c : Fin 2 => bigSep Finset.univ fun s : Fin 16 => bigSep (Finset.range 18) (TileK13.xP d (crd c s) (xt m d)))
          ∗ (bigSep Finset.univ fun c : Fin 2 => bigSep Finset.univ fun s : Fin 16 => bigSep (Finset.range 18) (TileK13.oP (F := F) d (crd c s)))) := by
  have h1 : (bigSep Finset.univ fun c : Fin ((K (F := F)).nCore qK) => (P m).st qK d c)
      = bigSep Finset.univ fun c : Fin ((K (F := F)).nCore qK) =>
          (fun c' : Fin 2 => bigSep (Finset.univ : Finset (Fin 16)) fun s => LaunchKI.goQ m qK d c' s) (c.cast (LaunchKI.nCore_eq qK)) :=
    bigSep_congr fun c _ => bigSep_castSub (fun s => LaunchKI.goQ m qK d (c.cast (LaunchKI.nCore_eq qK)) s)
  rw [h1, bigSep_castCore (fun c' : Fin 2 => bigSep (Finset.univ : Finset (Fin 16)) fun s => LaunchKI.goQ m qK d c' s), ← bigSep_sep']
  refine bigSep_congr fun c _ => ?_
  rw [← bigSep_sep']
  refine bigSep_congr fun s _ => ?_
  rw [goQ_eq]; rfl

/-- What it hands back. -/
theorem dn_eq (d : Dev nD) :
    (bigSep Finset.univ fun c : Fin ((K (F := F)).nCore qK) => (P m).dn qK d c)
      = iprop((bigSep Finset.univ fun c : Fin 2 => bigSep Finset.univ fun s : Fin 16 => bigSep (Finset.range 18) (TileK13.xP d (crd c s) (xt m d)))
          ∗ (bigSep Finset.univ fun c : Fin 2 => bigSep Finset.univ fun s : Fin 16 => bigSep (Finset.range 18) (TileK13.oQ d (crd c s) (xt m d)))) := by
  have h1 : (bigSep Finset.univ fun c : Fin ((K (F := F)).nCore qK) => (P m).dn qK d c)
      = bigSep Finset.univ fun c : Fin ((K (F := F)).nCore qK) =>
          (fun c' : Fin 2 => bigSep (Finset.univ : Finset (Fin 16)) fun s => LaunchKI.tdQ m qK d c' s) (c.cast (LaunchKI.nCore_eq qK)) :=
    bigSep_congr fun c _ => bigSep_castSub (fun s => LaunchKI.tdQ m qK d (c.cast (LaunchKI.nCore_eq qK)) s)
  rw [h1, bigSep_castCore (fun c' : Fin 2 => bigSep (Finset.univ : Finset (Fin 16)) fun s => LaunchKI.tdQ m qK d c' s), ← bigSep_sep']
  refine bigSep_congr fun c _ => ?_
  rw [← bigSep_sep']
  refine bigSep_congr fun s _ => ?_
  rw [tdQ_eq]; rfl

omit [FloatOps F] in
theorem pair_sub : ({vx', vo'} : Finset (DevRef τ sig)) ⊆ tcRefs τ sig :=
  Finset.insert_subset (devRef_mem_tcRefs _) (Finset.singleton_subset_iff.mpr (devRef_mem_tcRefs _))

omit [FloatOps F] in
theorem held_pair (d : Dev nD) (V : Valuation τ sig (Elt F)) :
    (held (SparseCore.T d) ({vx', vo'} : Finset (DevRef τ sig)) V : sProp 𝕄) = iprop((ℓx d ↦{fullShare} V vx') ∗ (ℓo d ↦{fullShare} V vo')) := by
  unfold held; rw [SparseCore.bigSep_insert' (by decide), bigSep_singleton]

/-- What the call does to the TensorCore's buffers, as an operation on valuations: result q takes row q of the transpose. -/
abbrev opC (d : Dev nD) : HloOp τ sig (Elt F) := StableHlo.nullary main_v14 (Cert.Spec.row qK (xt m d))

/-- The call, from the TensorCore's buffers held at a valuation V whose transposed argument is the transpose: it
    leaves them at V but for result q, which holds row q of the transpose. -/
theorem step (κ : GSem nD τ sig → ℕ) (d : Dev nD) (V : Valuation τ sig (Elt F)) (hV : V vx' = xt m d) {Φ : PUnit → sProp 𝕄} :
    iprop((K (F := F)).ctx EH (P m) κ ∗ (K (F := F)).tcSt EH d qK.val ∗ held (SparseCore.T d) (tcRefs τ sig) V
        ∗ (((K (F := F)).tcSt EH d (qK.val + 1) ∗ held (SparseCore.T d) (tcRefs τ sig) ((opC m d).result V)) -∗ Φ ⟨⟩))
      ⊢ wp frame (wpE ((K (F := F)).defs (D (F := F))) 𝒱 (SparseCore.T d) none) Set.univ ((K (F := F)).run d qK) Φ := by
  rw [held_sub_split (SparseCore.T d) pair_sub V, held_pair, hV]
  iintro ⟨#Hctx, Hst, ⟨⟨Hx, Ho⟩, Hrest⟩, Hk⟩
  ihave Hx' := (pointsTo_split_subset (q := fullShare) (f := xt m d) (Finset.subset_univ (Pieces.rowSet qK.val : Finset (Idx (ℓx d))))).1 $$ Hx
  icases Hx' with ⟨Hrow, Hxrest⟩
  iapply ((K (F := F)).wp_run (D (F := F)) 𝒱 (EH := EH) (P := P m) κ d qK) $$ [Hst Hrow Ho Hk Hxrest Hrest]
  isplitr; · iexact Hctx
  isplitl [Hst]; · iexact Hst
  isplitl [Hrow Ho]
  · rw [st_eq]
    isplitl [Hrow]
    · iapply (Entails.of_eq (x_pieces d (xt m d))); iexact Hrow
    · iapply (o_pieces_ex d (V vo')); iexact Ho
  iintro ⟨Hst, Hdn⟩
  ihave Hdn' := (Entails.of_eq (dn_eq m d)) $$ Hdn
  icases Hdn' with ⟨Hrow, Ho⟩
  ihave Hrow' := (Entails.of_eq (x_pieces d (xt m d)).symm) $$ Hrow
  ihave Ho' := (Entails.of_eq (o_pieces_row d (xt m d))) $$ Ho
  ihave Hx := (pointsTo_split_subset (q := fullShare) (f := xt m d) (Finset.subset_univ (Pieces.rowSet qK.val : Finset (Idx (ℓx d))))).2 $$ [Hrow' Hxrest]
  · isplitl [Hrow']; · iexact Hrow'
    iexact Hxrest
  iapply Hk
  isplitl [Hst]; · iexact Hst
  rw [held_sub_split (SparseCore.T d) pair_sub ((opC m d).result V), held_pair,
    StableHlo.nullary_result_ne _ _ _ V (show (main_v0 : Ref sig .tc) ≠ main_v14 by decide), StableHlo.nullary_result, hV,
    held_congr (SparseCore.T d) (V := (opC m d).result V) (V' := V)
      (fun b hb => (opC m d).result_of_not_mem V (fun hw => (Finset.mem_sdiff.mp hb).2
        (Finset.mem_insert_of_mem (Finset.mem_singleton.mpr (Finset.mem_singleton.mp hw)))))]
  isplitl [Hx Ho']
  · isplitl [Hx]; · iexact Hx
    iexact Ho'
  · iexact Hrest

end Cert.Proof.CallK13

end
-- ==== Proof.CallPieces14.lean ====
/-
  The pieces of one call: row q of the transposed argument, held at some contents, is the 32 vector subcores' pieces of
  it; result q, held whole at some contents, is their pieces of it.
-/
import proofs.«206869_g37898791420194_cont_8to1_b_558_20_alg».proof.Proof.TileK14Defs
import proofs.«206869_g37898791420194_cont_8to1_b_558_20_alg».proof.Proof.LaunchPieces

noncomputable section

namespace Cert.Proof.CallK14

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic
open Cert.Proof.Pieces (crd)

variable {F : FTy → Type}

abbrev UU : Type := URounds (GSem nD τ sig) ℕ × Counters
local notation "𝕄" => MT nD τ sig (HIx 22) (Elt F) ℕ UU ℕ

/-- The call's number. -/
abbrev qK : Fin 22 := 14
theorem hq : qK.val < 22 := qK.isLt

abbrev vx' : DevRef τ sig := Proc.devRef .tc (main_v0 : Ref sig .tc)
abbrev vo' : DevRef τ sig := Proc.devRef .tc (main_v15 : Ref sig .tc)
abbrev ℓx (d : Dev nD) : Loc nD τ sig := (SparseCore.T d).loc main_v0
abbrev ℓo (d : Dev nD) : Loc nD τ sig := (SparseCore.T d).loc main_v15

variable [FloatOps F]

/-- Row q of the transposed argument, held at contents f, is the tasks' pieces of it. -/
theorem x_pieces (d : Dev nD) (f : Buf (Elt F) (ℓx d)) :
    (ℓx d ↦[(Pieces.rowSet qK.val : Finset (Idx (ℓx d)))]{fullShare} f : sProp 𝕄)
      = bigSep Finset.univ fun c : Fin 2 => bigSep Finset.univ fun s : Fin 16 => bigSep (Finset.range 18) (TileK14.xP d (crd c s) f) := by
  rw [← Pieces.in_cover qK.val hq, pointsTo_biUnion _ _ (Pieces.in_disj qK.val hq), Pieces.bigSep_tris]
  refine bigSep_congr fun c _ => bigSep_congr fun s _ => bigSep_congr fun n _ => ?_
  unfold TileK14.xP
  by_cases h : TileK14.valid (crd c s) n
  · rw [if_pos h, if_pos (show Pieces.pnum (c, s, n) < 500 from (TileK14.valid_iff _ _).mp h)]
    show _ = ((TileK14.inM (crd c s) n).view.loc (TileK14.thr d (crd c s)) ↦[(TileK14.inM (crd c s) n).view.set]{fullShare} f)
    rw [show (TileK14.inM (crd c s) n).view.set = Pieces.inSet qK.val hq (c, s, n) from View.set_slice_whole _ _]
  · rw [if_neg h, if_neg (show ¬ Pieces.pnum (c, s, n) < 500 from fun h' => h ((TileK14.valid_iff _ _).mpr h'))]
    rfl

/-- Result q, held whole at contents g, is the tasks' pieces of it at g. -/
theorem o_pieces (d : Dev nD) (g : Buf (Elt F) (ℓo d)) :
    (ℓo d ↦{fullShare} g : sProp 𝕄)
      = bigSep Finset.univ fun c : Fin 2 => bigSep Finset.univ fun s : Fin 16 => bigSep (Finset.range 18) fun n =>
          if TileK14.valid (crd c s) n then
            ((TileK14.outM (crd c s) n).view.loc (TileK14.thr d (crd c s)) ↦[(TileK14.outM (crd c s) n).view.set]{fullShare} g : sProp 𝕄)
          else iprop(emp) := by
  show (ℓo d ↦[(Finset.univ : Finset (Idx (ℓo d)))]{fullShare} g : sProp 𝕄) = _
  rw [← Pieces.out_cover, pointsTo_biUnion _ _ Pieces.out_disj, Pieces.bigSep_tris]
  refine bigSep_congr fun c _ => bigSep_congr fun s _ => bigSep_congr fun n _ => ?_
  by_cases h : TileK14.valid (crd c s) n
  · rw [if_pos h, if_pos (show Pieces.pnum (c, s, n) < 500 from (TileK14.valid_iff _ _).mp h)]
    rw [show (TileK14.outM (crd c s) n).view.set = Pieces.outSet (c, s, n) from View.set_slice_whole _ _]
  · rw [if_neg h, if_neg (show ¬ Pieces.pnum (c, s, n) < 500 from fun h' => h ((TileK14.valid_iff _ _).mpr h'))]
    rfl

end Cert.Proof.CallK14

end
-- ==== Proof.LaunchStep14.lean ====
/-
  One call of a copy kernel, run from the TensorCore: from the TensorCore's buffers held at a valuation whose transposed
  argument is the transpose, the call leaves them at the same valuation but for result q, which holds row q.
-/
import proofs.«206869_g37898791420194_cont_8to1_b_558_20_alg».proof.Proof.LaunchP
import proofs.«206869_g37898791420194_cont_8to1_b_558_20_alg».proof.Proof.CallPieces14

noncomputable section

namespace Cert.Proof.CallK14

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic
open Idealize.ShloMosaic.StableHlo (tcRefs devRef_mem_tcRefs held_sub_split held_congr)
open Cert.Proof.Pieces (crd)
open Cert.Proof.LaunchKI (K D 𝒱 𝒱₀ v₀ EH P xt)

variable {F : FTy → Type}

local notation "𝕄" => MT nD τ sig (HIx 22) (Elt F) ℕ UU ℕ

variable (m : (ℓ : Loc nD τ sig) → Buf (Elt F) ℓ)
variable [FloatOps F]

/-- Result q held whole at some contents gives every task its pieces of it, each at some contents. -/
theorem o_pieces_ex (d : Dev nD) (g : Buf (Elt F) (ℓo d)) :
    (ℓo d ↦{fullShare} g : sProp 𝕄)
      ⊢ bigSep Finset.univ fun c : Fin 2 => bigSep Finset.univ fun s : Fin 16 => bigSep (Finset.range 18) (TileK14.oP (F := F) d (crd c s)) := by
  rw [o_pieces d g]
  refine bigSep_mono fun c _ => bigSep_mono fun s _ => bigSep_mono fun n _ => ?_
  unfold TileK14.oP
  by_cases h : TileK14.valid (crd c s) n
  · rw [if_pos h, if_pos h]
    exact exists_intro (Φ := fun f => (((TileK14.outM (crd c s) n).view.loc (TileK14.thr d (crd c s)) ↦[(TileK14.outM (crd c s) n).view.set]{fullShare} f : sProp 𝕄))) g
  · rw [if_neg h, if_neg h]; exact BI.Entails.refl _

/-- The tasks' pieces of result q, each holding row q of f, are result q whole holding that row. -/
theorem o_pieces_row (d : Dev nD) (f : Buf (Elt F) (ℓx d)) :
    (bigSep Finset.univ fun c : Fin 2 => bigSep Finset.univ fun s : Fin 16 => bigSep (Finset.range 18) (TileK14.oQ d (crd c s) f))
      = (ℓo d ↦{fullShare} (Cert.Spec.row qK f : Buf (Elt F) (ℓo d)) : sProp 𝕄) := by
  rw [o_pieces d (Cert.Spec.row qK f : Buf (Elt F) (ℓo d))]
  rfl

omit [FloatOps F] in
/-- A separating conjunction over the call's grid of vector subcores, or of SparseCores, is one over sixteen, or two. -/
theorem bigSep_castSub (Φ : Fin 16 → sProp 𝕄) :
    (bigSep Finset.univ fun i : Fin ((K (F := F)).nSub qK) => Φ (i.cast (LaunchKI.nSub_eq qK))) = bigSep Finset.univ Φ :=
  bigSep_congr fun _ _ => congrArg Φ (Fin.ext rfl)
omit [FloatOps F] in
theorem bigSep_castCore (Φ : Fin 2 → sProp 𝕄) :
    (bigSep Finset.univ fun c : Fin ((K (F := F)).nCore qK) => Φ (c.cast (LaunchKI.nCore_eq qK))) = bigSep Finset.univ Φ :=
  bigSep_congr fun _ _ => congrArg Φ (Fin.ext rfl)

theorem goQ_eq (d : Dev nD) (c : Fin 2) (s : Fin 16) : LaunchKI.goQ m qK d c s = TileK14.goRes d (crd c s) (xt m d) := rfl
theorem tdQ_eq (d : Dev nD) (c : Fin 2) (s : Fin 16) : LaunchKI.tdQ m qK d c s = TileK14.tdRes d (crd c s) (xt m d) := rfl

/-- What the call takes for the two SparseCores: every task's pieces. -/
theorem st_eq (d : Dev nD) :
    (bigSep Finset.univ fun c : Fin ((K (F := F)).nCore qK) => (P m).st qK d c)
      = iprop((bigSep Finset.univ fun c : Fin 2 => bigSep Finset.univ fun s : Fin 16 => bigSep (Finset.range 18) (TileK14.xP d (crd c s) (xt m d)))
          ∗ (bigSep Finset.univ fun c : Fin 2 => bigSep Finset.univ fun s : Fin 16 => bigSep (Finset.range 18) (TileK14.oP (F := F) d (crd c s)))) := by
  have h1 : (bigSep Finset.univ fun c : Fin ((K (F := F)).nCore qK) => (P m).st qK d c)
      = bigSep Finset.univ fun c : Fin ((K (F := F)).nCore qK) =>
          (fun c' : Fin 2 => bigSep (Finset.univ : Finset (Fin 16)) fun s => LaunchKI.goQ m qK d c' s) (c.cast (LaunchKI.nCore_eq qK)) :=
    bigSep_congr fun c _ => bigSep_castSub (fun s => LaunchKI.goQ m qK d (c.cast (LaunchKI.nCore_eq qK)) s)
  rw [h1, bigSep_castCore (fun c' : Fin 2 => bigSep (Finset.univ : Finset (Fin 16)) fun s => LaunchKI.goQ m qK d c' s), ← bigSep_sep']
  refine bigSep_congr fun c _ => ?_
  rw [← bigSep_sep']
  refine bigSep_congr fun s _ => ?_
  rw [goQ_eq]; rfl

/-- What it hands back. -/
theorem dn_eq (d : Dev nD) :
    (bigSep Finset.univ fun c : Fin ((K (F := F)).nCore qK) => (P m).dn qK d c)
      = iprop((bigSep Finset.univ fun c : Fin 2 => bigSep Finset.univ fun s : Fin 16 => bigSep (Finset.range 18) (TileK14.xP d (crd c s) (xt m d)))
          ∗ (bigSep Finset.univ fun c : Fin 2 => bigSep Finset.univ fun s : Fin 16 => bigSep (Finset.range 18) (TileK14.oQ d (crd c s) (xt m d)))) := by
  have h1 : (bigSep Finset.univ fun c : Fin ((K (F := F)).nCore qK) => (P m).dn qK d c)
      = bigSep Finset.univ fun c : Fin ((K (F := F)).nCore qK) =>
          (fun c' : Fin 2 => bigSep (Finset.univ : Finset (Fin 16)) fun s => LaunchKI.tdQ m qK d c' s) (c.cast (LaunchKI.nCore_eq qK)) :=
    bigSep_congr fun c _ => bigSep_castSub (fun s => LaunchKI.tdQ m qK d (c.cast (LaunchKI.nCore_eq qK)) s)
  rw [h1, bigSep_castCore (fun c' : Fin 2 => bigSep (Finset.univ : Finset (Fin 16)) fun s => LaunchKI.tdQ m qK d c' s), ← bigSep_sep']
  refine bigSep_congr fun c _ => ?_
  rw [← bigSep_sep']
  refine bigSep_congr fun s _ => ?_
  rw [tdQ_eq]; rfl

omit [FloatOps F] in
theorem pair_sub : ({vx', vo'} : Finset (DevRef τ sig)) ⊆ tcRefs τ sig :=
  Finset.insert_subset (devRef_mem_tcRefs _) (Finset.singleton_subset_iff.mpr (devRef_mem_tcRefs _))

omit [FloatOps F] in
theorem held_pair (d : Dev nD) (V : Valuation τ sig (Elt F)) :
    (held (SparseCore.T d) ({vx', vo'} : Finset (DevRef τ sig)) V : sProp 𝕄) = iprop((ℓx d ↦{fullShare} V vx') ∗ (ℓo d ↦{fullShare} V vo')) := by
  unfold held; rw [SparseCore.bigSep_insert' (by decide), bigSep_singleton]

/-- What the call does to the TensorCore's buffers, as an operation on valuations: result q takes row q of the transpose. -/
abbrev opC (d : Dev nD) : HloOp τ sig (Elt F) := StableHlo.nullary main_v15 (Cert.Spec.row qK (xt m d))

/-- The call, from the TensorCore's buffers held at a valuation V whose transposed argument is the transpose: it
    leaves them at V but for result q, which holds row q of the transpose. -/
theorem step (κ : GSem nD τ sig → ℕ) (d : Dev nD) (V : Valuation τ sig (Elt F)) (hV : V vx' = xt m d) {Φ : PUnit → sProp 𝕄} :
    iprop((K (F := F)).ctx EH (P m) κ ∗ (K (F := F)).tcSt EH d qK.val ∗ held (SparseCore.T d) (tcRefs τ sig) V
        ∗ (((K (F := F)).tcSt EH d (qK.val + 1) ∗ held (SparseCore.T d) (tcRefs τ sig) ((opC m d).result V)) -∗ Φ ⟨⟩))
      ⊢ wp frame (wpE ((K (F := F)).defs (D (F := F))) 𝒱 (SparseCore.T d) none) Set.univ ((K (F := F)).run d qK) Φ := by
  rw [held_sub_split (SparseCore.T d) pair_sub V, held_pair, hV]
  iintro ⟨#Hctx, Hst, ⟨⟨Hx, Ho⟩, Hrest⟩, Hk⟩
  ihave Hx' := (pointsTo_split_subset (q := fullShare) (f := xt m d) (Finset.subset_univ (Pieces.rowSet qK.val : Finset (Idx (ℓx d))))).1 $$ Hx
  icases Hx' with ⟨Hrow, Hxrest⟩
  iapply ((K (F := F)).wp_run (D (F := F)) 𝒱 (EH := EH) (P := P m) κ d qK) $$ [Hst Hrow Ho Hk Hxrest Hrest]
  isplitr; · iexact Hctx
  isplitl [Hst]; · iexact Hst
  isplitl [Hrow Ho]
  · rw [st_eq]
    isplitl [Hrow]
    · iapply (Entails.of_eq (x_pieces d (xt m d))); iexact Hrow
    · iapply (o_pieces_ex d (V vo')); iexact Ho
  iintro ⟨Hst, Hdn⟩
  ihave Hdn' := (Entails.of_eq (dn_eq m d)) $$ Hdn
  icases Hdn' with ⟨Hrow, Ho⟩
  ihave Hrow' := (Entails.of_eq (x_pieces d (xt m d)).symm) $$ Hrow
  ihave Ho' := (Entails.of_eq (o_pieces_row d (xt m d))) $$ Ho
  ihave Hx := (pointsTo_split_subset (q := fullShare) (f := xt m d) (Finset.subset_univ (Pieces.rowSet qK.val : Finset (Idx (ℓx d))))).2 $$ [Hrow' Hxrest]
  · isplitl [Hrow']; · iexact Hrow'
    iexact Hxrest
  iapply Hk
  isplitl [Hst]; · iexact Hst
  rw [held_sub_split (SparseCore.T d) pair_sub ((opC m d).result V), held_pair,
    StableHlo.nullary_result_ne _ _ _ V (show (main_v0 : Ref sig .tc) ≠ main_v15 by decide), StableHlo.nullary_result, hV,
    held_congr (SparseCore.T d) (V := (opC m d).result V) (V' := V)
      (fun b hb => (opC m d).result_of_not_mem V (fun hw => (Finset.mem_sdiff.mp hb).2
        (Finset.mem_insert_of_mem (Finset.mem_singleton.mpr (Finset.mem_singleton.mp hw)))))]
  isplitl [Hx Ho']
  · isplitl [Hx]; · iexact Hx
    iexact Ho'
  · iexact Hrest

end Cert.Proof.CallK14

end
-- ==== Proof.CallPieces15.lean ====
/-
  The pieces of one call: row q of the transposed argument, held at some contents, is the 32 vector subcores' pieces of
  it; result q, held whole at some contents, is their pieces of it.
-/
import proofs.«206869_g37898791420194_cont_8to1_b_558_20_alg».proof.Proof.TileK15Defs
import proofs.«206869_g37898791420194_cont_8to1_b_558_20_alg».proof.Proof.LaunchPieces

noncomputable section

namespace Cert.Proof.CallK15

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic
open Cert.Proof.Pieces (crd)

variable {F : FTy → Type}

abbrev UU : Type := URounds (GSem nD τ sig) ℕ × Counters
local notation "𝕄" => MT nD τ sig (HIx 22) (Elt F) ℕ UU ℕ

/-- The call's number. -/
abbrev qK : Fin 22 := 15
theorem hq : qK.val < 22 := qK.isLt

abbrev vx' : DevRef τ sig := Proc.devRef .tc (main_v0 : Ref sig .tc)
abbrev vo' : DevRef τ sig := Proc.devRef .tc (main_v16 : Ref sig .tc)
abbrev ℓx (d : Dev nD) : Loc nD τ sig := (SparseCore.T d).loc main_v0
abbrev ℓo (d : Dev nD) : Loc nD τ sig := (SparseCore.T d).loc main_v16

variable [FloatOps F]

/-- Row q of the transposed argument, held at contents f, is the tasks' pieces of it. -/
theorem x_pieces (d : Dev nD) (f : Buf (Elt F) (ℓx d)) :
    (ℓx d ↦[(Pieces.rowSet qK.val : Finset (Idx (ℓx d)))]{fullShare} f : sProp 𝕄)
      = bigSep Finset.univ fun c : Fin 2 => bigSep Finset.univ fun s : Fin 16 => bigSep (Finset.range 18) (TileK15.xP d (crd c s) f) := by
  rw [← Pieces.in_cover qK.val hq, pointsTo_biUnion _ _ (Pieces.in_disj qK.val hq), Pieces.bigSep_tris]
  refine bigSep_congr fun c _ => bigSep_congr fun s _ => bigSep_congr fun n _ => ?_
  unfold TileK15.xP
  by_cases h : TileK15.valid (crd c s) n
  · rw [if_pos h, if_pos (show Pieces.pnum (c, s, n) < 500 from (TileK15.valid_iff _ _).mp h)]
    show _ = ((TileK15.inM (crd c s) n).view.loc (TileK15.thr d (crd c s)) ↦[(TileK15.inM (crd c s) n).view.set]{fullShare} f)
    rw [show (TileK15.inM (crd c s) n).view.set = Pieces.inSet qK.val hq (c, s, n) from View.set_slice_whole _ _]
  · rw [if_neg h, if_neg (show ¬ Pieces.pnum (c, s, n) < 500 from fun h' => h ((TileK15.valid_iff _ _).mpr h'))]
    rfl

/-- Result q, held whole at contents g, is the tasks' pieces of it at g. -/
theorem o_pieces (d : Dev nD) (g : Buf (Elt F) (ℓo d)) :
    (ℓo d ↦{fullShare} g : sProp 𝕄)
      = bigSep Finset.univ fun c : Fin 2 => bigSep Finset.univ fun s : Fin 16 => bigSep (Finset.range 18) fun n =>
          if TileK15.valid (crd c s) n then
            ((TileK15.outM (crd c s) n).view.loc (TileK15.thr d (crd c s)) ↦[(TileK15.outM (crd c s) n).view.set]{fullShare} g : sProp 𝕄)
          else iprop(emp) := by
  show (ℓo d ↦[(Finset.univ : Finset (Idx (ℓo d)))]{fullShare} g : sProp 𝕄) = _
  rw [← Pieces.out_cover, pointsTo_biUnion _ _ Pieces.out_disj, Pieces.bigSep_tris]
  refine bigSep_congr fun c _ => bigSep_congr fun s _ => bigSep_congr fun n _ => ?_
  by_cases h : TileK15.valid (crd c s) n
  · rw [if_pos h, if_pos (show Pieces.pnum (c, s, n) < 500 from (TileK15.valid_iff _ _).mp h)]
    rw [show (TileK15.outM (crd c s) n).view.set = Pieces.outSet (c, s, n) from View.set_slice_whole _ _]
  · rw [if_neg h, if_neg (show ¬ Pieces.pnum (c, s, n) < 500 from fun h' => h ((TileK15.valid_iff _ _).mpr h'))]
    rfl

end Cert.Proof.CallK15

end
-- ==== Proof.LaunchStep15.lean ====
/-
  One call of a copy kernel, run from the TensorCore: from the TensorCore's buffers held at a valuation whose transposed
  argument is the transpose, the call leaves them at the same valuation but for result q, which holds row q.
-/
import proofs.«206869_g37898791420194_cont_8to1_b_558_20_alg».proof.Proof.LaunchP
import proofs.«206869_g37898791420194_cont_8to1_b_558_20_alg».proof.Proof.CallPieces15

noncomputable section

namespace Cert.Proof.CallK15

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic
open Idealize.ShloMosaic.StableHlo (tcRefs devRef_mem_tcRefs held_sub_split held_congr)
open Cert.Proof.Pieces (crd)
open Cert.Proof.LaunchKI (K D 𝒱 𝒱₀ v₀ EH P xt)

variable {F : FTy → Type}

local notation "𝕄" => MT nD τ sig (HIx 22) (Elt F) ℕ UU ℕ

variable (m : (ℓ : Loc nD τ sig) → Buf (Elt F) ℓ)
variable [FloatOps F]

/-- Result q held whole at some contents gives every task its pieces of it, each at some contents. -/
theorem o_pieces_ex (d : Dev nD) (g : Buf (Elt F) (ℓo d)) :
    (ℓo d ↦{fullShare} g : sProp 𝕄)
      ⊢ bigSep Finset.univ fun c : Fin 2 => bigSep Finset.univ fun s : Fin 16 => bigSep (Finset.range 18) (TileK15.oP (F := F) d (crd c s)) := by
  rw [o_pieces d g]
  refine bigSep_mono fun c _ => bigSep_mono fun s _ => bigSep_mono fun n _ => ?_
  unfold TileK15.oP
  by_cases h : TileK15.valid (crd c s) n
  · rw [if_pos h, if_pos h]
    exact exists_intro (Φ := fun f => (((TileK15.outM (crd c s) n).view.loc (TileK15.thr d (crd c s)) ↦[(TileK15.outM (crd c s) n).view.set]{fullShare} f : sProp 𝕄))) g
  · rw [if_neg h, if_neg h]; exact BI.Entails.refl _

/-- The tasks' pieces of result q, each holding row q of f, are result q whole holding that row. -/
theorem o_pieces_row (d : Dev nD) (f : Buf (Elt F) (ℓx d)) :
    (bigSep Finset.univ fun c : Fin 2 => bigSep Finset.univ fun s : Fin 16 => bigSep (Finset.range 18) (TileK15.oQ d (crd c s) f))
      = (ℓo d ↦{fullShare} (Cert.Spec.row qK f : Buf (Elt F) (ℓo d)) : sProp 𝕄) := by
  rw [o_pieces d (Cert.Spec.row qK f : Buf (Elt F) (ℓo d))]
  rfl

omit [FloatOps F] in
/-- A separating conjunction over the call's grid of vector subcores, or of SparseCores, is one over sixteen, or two. -/
theorem bigSep_castSub (Φ : Fin 16 → sProp 𝕄) :
    (bigSep Finset.univ fun i : Fin ((K (F := F)).nSub qK) => Φ (i.cast (LaunchKI.nSub_eq qK))) = bigSep Finset.univ Φ :=
  bigSep_congr fun _ _ => congrArg Φ (Fin.ext rfl)
omit [FloatOps F] in
theorem bigSep_castCore (Φ : Fin 2 → sProp 𝕄) :
    (bigSep Finset.univ fun c : Fin ((K (F := F)).nCore qK) => Φ (c.cast (LaunchKI.nCore_eq qK))) = bigSep Finset.univ Φ :=
  bigSep_congr fun _ _ => congrArg Φ (Fin.ext rfl)

theorem goQ_eq (d : Dev nD) (c : Fin 2) (s : Fin 16) : LaunchKI.goQ m qK d c s = TileK15.goRes d (crd c s) (xt m d) := rfl
theorem tdQ_eq (d : Dev nD) (c : Fin 2) (s : Fin 16) : LaunchKI.tdQ m qK d c s = TileK15.tdRes d (crd c s) (xt m d) := rfl

/-- What the call takes for the two SparseCores: every task's pieces. -/
theorem st_eq (d : Dev nD) :
    (bigSep Finset.univ fun c : Fin ((K (F := F)).nCore qK) => (P m).st qK d c)
      = iprop((bigSep Finset.univ fun c : Fin 2 => bigSep Finset.univ fun s : Fin 16 => bigSep (Finset.range 18) (TileK15.xP d (crd c s) (xt m d)))
          ∗ (bigSep Finset.univ fun c : Fin 2 => bigSep Finset.univ fun s : Fin 16 => bigSep (Finset.range 18) (TileK15.oP (F := F) d (crd c s)))) := by
  have h1 : (bigSep Finset.univ fun c : Fin ((K (F := F)).nCore qK) => (P m).st qK d c)
      = bigSep Finset.univ fun c : Fin ((K (F := F)).nCore qK) =>
          (fun c' : Fin 2 => bigSep (Finset.univ : Finset (Fin 16)) fun s => LaunchKI.goQ m qK d c' s) (c.cast (LaunchKI.nCore_eq qK)) :=
    bigSep_congr fun c _ => bigSep_castSub (fun s => LaunchKI.goQ m qK d (c.cast (LaunchKI.nCore_eq qK)) s)
  rw [h1, bigSep_castCore (fun c' : Fin 2 => bigSep (Finset.univ : Finset (Fin 16)) fun s => LaunchKI.goQ m qK d c' s), ← bigSep_sep']
  refine bigSep_congr fun c _ => ?_
  rw [← bigSep_sep']
  refine bigSep_congr fun s _ => ?_
  rw [goQ_eq]; rfl

/-- What it hands back. -/
theorem dn_eq (d : Dev nD) :
    (bigSep Finset.univ fun c : Fin ((K (F := F)).nCore qK) => (P m).dn qK d c)
      = iprop((bigSep Finset.univ fun c : Fin 2 => bigSep Finset.univ fun s : Fin 16 => bigSep (Finset.range 18) (TileK15.xP d (crd c s) (xt m d)))
          ∗ (bigSep Finset.univ fun c : Fin 2 => bigSep Finset.univ fun s : Fin 16 => bigSep (Finset.range 18) (TileK15.oQ d (crd c s) (xt m d)))) := by
  have h1 : (bigSep Finset.univ fun c : Fin ((K (F := F)).nCore qK) => (P m).dn qK d c)
      = bigSep Finset.univ fun c : Fin ((K (F := F)).nCore qK) =>
          (fun c' : Fin 2 => bigSep (Finset.univ : Finset (Fin 16)) fun s => LaunchKI.tdQ m qK d c' s) (c.cast (LaunchKI.nCore_eq qK)) :=
    bigSep_congr fun c _ => bigSep_castSub (fun s => LaunchKI.tdQ m qK d (c.cast (LaunchKI.nCore_eq qK)) s)
  rw [h1, bigSep_castCore (fun c' : Fin 2 => bigSep (Finset.univ : Finset (Fin 16)) fun s => LaunchKI.tdQ m qK d c' s), ← bigSep_sep']
  refine bigSep_congr fun c _ => ?_
  rw [← bigSep_sep']
  refine bigSep_congr fun s _ => ?_
  rw [tdQ_eq]; rfl

omit [FloatOps F] in
theorem pair_sub : ({vx', vo'} : Finset (DevRef τ sig)) ⊆ tcRefs τ sig :=
  Finset.insert_subset (devRef_mem_tcRefs _) (Finset.singleton_subset_iff.mpr (devRef_mem_tcRefs _))

omit [FloatOps F] in
theorem held_pair (d : Dev nD) (V : Valuation τ sig (Elt F)) :
    (held (SparseCore.T d) ({vx', vo'} : Finset (DevRef τ sig)) V : sProp 𝕄) = iprop((ℓx d ↦{fullShare} V vx') ∗ (ℓo d ↦{fullShare} V vo')) := by
  unfold held; rw [SparseCore.bigSep_insert' (by decide), bigSep_singleton]

/-- What the call does to the TensorCore's buffers, as an operation on valuations: result q takes row q of the transpose. -/
abbrev opC (d : Dev nD) : HloOp τ sig (Elt F) := StableHlo.nullary main_v16 (Cert.Spec.row qK (xt m d))

/-- The call, from the TensorCore's buffers held at a valuation V whose transposed argument is the transpose: it
    leaves them at V but for result q, which holds row q of the transpose. -/
theorem step (κ : GSem nD τ sig → ℕ) (d : Dev nD) (V : Valuation τ sig (Elt F)) (hV : V vx' = xt m d) {Φ : PUnit → sProp 𝕄} :
    iprop((K (F := F)).ctx EH (P m) κ ∗ (K (F := F)).tcSt EH d qK.val ∗ held (SparseCore.T d) (tcRefs τ sig) V
        ∗ (((K (F := F)).tcSt EH d (qK.val + 1) ∗ held (SparseCore.T d) (tcRefs τ sig) ((opC m d).result V)) -∗ Φ ⟨⟩))
      ⊢ wp frame (wpE ((K (F := F)).defs (D (F := F))) 𝒱 (SparseCore.T d) none) Set.univ ((K (F := F)).run d qK) Φ := by
  rw [held_sub_split (SparseCore.T d) pair_sub V, held_pair, hV]
  iintro ⟨#Hctx, Hst, ⟨⟨Hx, Ho⟩, Hrest⟩, Hk⟩
  ihave Hx' := (pointsTo_split_subset (q := fullShare) (f := xt m d) (Finset.subset_univ (Pieces.rowSet qK.val : Finset (Idx (ℓx d))))).1 $$ Hx
  icases Hx' with ⟨Hrow, Hxrest⟩
  iapply ((K (F := F)).wp_run (D (F := F)) 𝒱 (EH := EH) (P := P m) κ d qK) $$ [Hst Hrow Ho Hk Hxrest Hrest]
  isplitr; · iexact Hctx
  isplitl [Hst]; · iexact Hst
  isplitl [Hrow Ho]
  · rw [st_eq]
    isplitl [Hrow]
    · iapply (Entails.of_eq (x_pieces d (xt m d))); iexact Hrow
    · iapply (o_pieces_ex d (V vo')); iexact Ho
  iintro ⟨Hst, Hdn⟩
  ihave Hdn' := (Entails.of_eq (dn_eq m d)) $$ Hdn
  icases Hdn' with ⟨Hrow, Ho⟩
  ihave Hrow' := (Entails.of_eq (x_pieces d (xt m d)).symm) $$ Hrow
  ihave Ho' := (Entails.of_eq (o_pieces_row d (xt m d))) $$ Ho
  ihave Hx := (pointsTo_split_subset (q := fullShare) (f := xt m d) (Finset.subset_univ (Pieces.rowSet qK.val : Finset (Idx (ℓx d))))).2 $$ [Hrow' Hxrest]
  · isplitl [Hrow']; · iexact Hrow'
    iexact Hxrest
  iapply Hk
  isplitl [Hst]; · iexact Hst
  rw [held_sub_split (SparseCore.T d) pair_sub ((opC m d).result V), held_pair,
    StableHlo.nullary_result_ne _ _ _ V (show (main_v0 : Ref sig .tc) ≠ main_v16 by decide), StableHlo.nullary_result, hV,
    held_congr (SparseCore.T d) (V := (opC m d).result V) (V' := V)
      (fun b hb => (opC m d).result_of_not_mem V (fun hw => (Finset.mem_sdiff.mp hb).2
        (Finset.mem_insert_of_mem (Finset.mem_singleton.mpr (Finset.mem_singleton.mp hw)))))]
  isplitl [Hx Ho']
  · isplitl [Hx]; · iexact Hx
    iexact Ho'
  · iexact Hrest

end Cert.Proof.CallK15

end
-- ==== Proof.CallPieces16.lean ====
/-
  The pieces of one call: row q of the transposed argument, held at some contents, is the 32 vector subcores' pieces of
  it; result q, held whole at some contents, is their pieces of it.
-/
import proofs.«206869_g37898791420194_cont_8to1_b_558_20_alg».proof.Proof.TileK16Defs
import proofs.«206869_g37898791420194_cont_8to1_b_558_20_alg».proof.Proof.LaunchPieces

noncomputable section

namespace Cert.Proof.CallK16

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic
open Cert.Proof.Pieces (crd)

variable {F : FTy → Type}

abbrev UU : Type := URounds (GSem nD τ sig) ℕ × Counters
local notation "𝕄" => MT nD τ sig (HIx 22) (Elt F) ℕ UU ℕ

/-- The call's number. -/
abbrev qK : Fin 22 := 16
theorem hq : qK.val < 22 := qK.isLt

abbrev vx' : DevRef τ sig := Proc.devRef .tc (main_v0 : Ref sig .tc)
abbrev vo' : DevRef τ sig := Proc.devRef .tc (main_v17 : Ref sig .tc)
abbrev ℓx (d : Dev nD) : Loc nD τ sig := (SparseCore.T d).loc main_v0
abbrev ℓo (d : Dev nD) : Loc nD τ sig := (SparseCore.T d).loc main_v17

variable [FloatOps F]

/-- Row q of the transposed argument, held at contents f, is the tasks' pieces of it. -/
theorem x_pieces (d : Dev nD) (f : Buf (Elt F) (ℓx d)) :
    (ℓx d ↦[(Pieces.rowSet qK.val : Finset (Idx (ℓx d)))]{fullShare} f : sProp 𝕄)
      = bigSep Finset.univ fun c : Fin 2 => bigSep Finset.univ fun s : Fin 16 => bigSep (Finset.range 18) (TileK16.xP d (crd c s) f) := by
  rw [← Pieces.in_cover qK.val hq, pointsTo_biUnion _ _ (Pieces.in_disj qK.val hq), Pieces.bigSep_tris]
  refine bigSep_congr fun c _ => bigSep_congr fun s _ => bigSep_congr fun n _ => ?_
  unfold TileK16.xP
  by_cases h : TileK16.valid (crd c s) n
  · rw [if_pos h, if_pos (show Pieces.pnum (c, s, n) < 500 from (TileK16.valid_iff _ _).mp h)]
    show _ = ((TileK16.inM (crd c s) n).view.loc (TileK16.thr d (crd c s)) ↦[(TileK16.inM (crd c s) n).view.set]{fullShare} f)
    rw [show (TileK16.inM (crd c s) n).view.set = Pieces.inSet qK.val hq (c, s, n) from View.set_slice_whole _ _]
  · rw [if_neg h, if_neg (show ¬ Pieces.pnum (c, s, n) < 500 from fun h' => h ((TileK16.valid_iff _ _).mpr h'))]
    rfl

/-- Result q, held whole at contents g, is the tasks' pieces of it at g. -/
theorem o_pieces (d : Dev nD) (g : Buf (Elt F) (ℓo d)) :
    (ℓo d ↦{fullShare} g : sProp 𝕄)
      = bigSep Finset.univ fun c : Fin 2 => bigSep Finset.univ fun s : Fin 16 => bigSep (Finset.range 18) fun n =>
          if TileK16.valid (crd c s) n then
            ((TileK16.outM (crd c s) n).view.loc (TileK16.thr d (crd c s)) ↦[(TileK16.outM (crd c s) n).view.set]{fullShare} g : sProp 𝕄)
          else iprop(emp) := by
  show (ℓo d ↦[(Finset.univ : Finset (Idx (ℓo d)))]{fullShare} g : sProp 𝕄) = _
  rw [← Pieces.out_cover, pointsTo_biUnion _ _ Pieces.out_disj, Pieces.bigSep_tris]
  refine bigSep_congr fun c _ => bigSep_congr fun s _ => bigSep_congr fun n _ => ?_
  by_cases h : TileK16.valid (crd c s) n
  · rw [if_pos h, if_pos (show Pieces.pnum (c, s, n) < 500 from (TileK16.valid_iff _ _).mp h)]
    rw [show (TileK16.outM (crd c s) n).view.set = Pieces.outSet (c, s, n) from View.set_slice_whole _ _]
  · rw [if_neg h, if_neg (show ¬ Pieces.pnum (c, s, n) < 500 from fun h' => h ((TileK16.valid_iff _ _).mpr h'))]
    rfl

end Cert.Proof.CallK16

end
-- ==== Proof.LaunchStep16.lean ====
/-
  One call of a copy kernel, run from the TensorCore: from the TensorCore's buffers held at a valuation whose transposed
  argument is the transpose, the call leaves them at the same valuation but for result q, which holds row q.
-/
import proofs.«206869_g37898791420194_cont_8to1_b_558_20_alg».proof.Proof.LaunchP
import proofs.«206869_g37898791420194_cont_8to1_b_558_20_alg».proof.Proof.CallPieces16

noncomputable section

namespace Cert.Proof.CallK16

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic
open Idealize.ShloMosaic.StableHlo (tcRefs devRef_mem_tcRefs held_sub_split held_congr)
open Cert.Proof.Pieces (crd)
open Cert.Proof.LaunchKI (K D 𝒱 𝒱₀ v₀ EH P xt)

variable {F : FTy → Type}

local notation "𝕄" => MT nD τ sig (HIx 22) (Elt F) ℕ UU ℕ

variable (m : (ℓ : Loc nD τ sig) → Buf (Elt F) ℓ)
variable [FloatOps F]

/-- Result q held whole at some contents gives every task its pieces of it, each at some contents. -/
theorem o_pieces_ex (d : Dev nD) (g : Buf (Elt F) (ℓo d)) :
    (ℓo d ↦{fullShare} g : sProp 𝕄)
      ⊢ bigSep Finset.univ fun c : Fin 2 => bigSep Finset.univ fun s : Fin 16 => bigSep (Finset.range 18) (TileK16.oP (F := F) d (crd c s)) := by
  rw [o_pieces d g]
  refine bigSep_mono fun c _ => bigSep_mono fun s _ => bigSep_mono fun n _ => ?_
  unfold TileK16.oP
  by_cases h : TileK16.valid (crd c s) n
  · rw [if_pos h, if_pos h]
    exact exists_intro (Φ := fun f => (((TileK16.outM (crd c s) n).view.loc (TileK16.thr d (crd c s)) ↦[(TileK16.outM (crd c s) n).view.set]{fullShare} f : sProp 𝕄))) g
  · rw [if_neg h, if_neg h]; exact BI.Entails.refl _

/-- The tasks' pieces of result q, each holding row q of f, are result q whole holding that row. -/
theorem o_pieces_row (d : Dev nD) (f : Buf (Elt F) (ℓx d)) :
    (bigSep Finset.univ fun c : Fin 2 => bigSep Finset.univ fun s : Fin 16 => bigSep (Finset.range 18) (TileK16.oQ d (crd c s) f))
      = (ℓo d ↦{fullShare} (Cert.Spec.row qK f : Buf (Elt F) (ℓo d)) : sProp 𝕄) := by
  rw [o_pieces d (Cert.Spec.row qK f : Buf (Elt F) (ℓo d))]
  rfl

omit [FloatOps F] in
/-- A separating conjunction over the call's grid of vector subcores, or of SparseCores, is one over sixteen, or two. -/
theorem bigSep_castSub (Φ : Fin 16 → sProp 𝕄) :
    (bigSep Finset.univ fun i : Fin ((K (F := F)).nSub qK) => Φ (i.cast (LaunchKI.nSub_eq qK))) = bigSep Finset.univ Φ :=
  bigSep_congr fun _ _ => congrArg Φ (Fin.ext rfl)
omit [FloatOps F] in
theorem bigSep_castCore (Φ : Fin 2 → sProp 𝕄) :
    (bigSep Finset.univ fun c : Fin ((K (F := F)).nCore qK) => Φ (c.cast (LaunchKI.nCore_eq qK))) = bigSep Finset.univ Φ :=
  bigSep_congr fun _ _ => congrArg Φ (Fin.ext rfl)

theorem goQ_eq (d : Dev nD) (c : Fin 2) (s : Fin 16) : LaunchKI.goQ m qK d c s = TileK16.goRes d (crd c s) (xt m d) := rfl
theorem tdQ_eq (d : Dev nD) (c : Fin 2) (s : Fin 16) : LaunchKI.tdQ m qK d c s = TileK16.tdRes d (crd c s) (xt m d) := rfl

/-- What the call takes for the two SparseCores: every task's pieces. -/
theorem st_eq (d : Dev nD) :
    (bigSep Finset.univ fun c : Fin ((K (F := F)).nCore qK) => (P m).st qK d c)
      = iprop((bigSep Finset.univ fun c : Fin 2 => bigSep Finset.univ fun s : Fin 16 => bigSep (Finset.range 18) (TileK16.xP d (crd c s) (xt m d)))
          ∗ (bigSep Finset.univ fun c : Fin 2 => bigSep Finset.univ fun s : Fin 16 => bigSep (Finset.range 18) (TileK16.oP (F := F) d (crd c s)))) := by
  have h1 : (bigSep Finset.univ fun c : Fin ((K (F := F)).nCore qK) => (P m).st qK d c)
      = bigSep Finset.univ fun c : Fin ((K (F := F)).nCore qK) =>
          (fun c' : Fin 2 => bigSep (Finset.univ : Finset (Fin 16)) fun s => LaunchKI.goQ m qK d c' s) (c.cast (LaunchKI.nCore_eq qK)) :=
    bigSep_congr fun c _ => bigSep_castSub (fun s => LaunchKI.goQ m qK d (c.cast (LaunchKI.nCore_eq qK)) s)
  rw [h1, bigSep_castCore (fun c' : Fin 2 => bigSep (Finset.univ : Finset (Fin 16)) fun s => LaunchKI.goQ m qK d c' s), ← bigSep_sep']
  refine bigSep_congr fun c _ => ?_
  rw [← bigSep_sep']
  refine bigSep_congr fun s _ => ?_
  rw [goQ_eq]; rfl

/-- What it hands back. -/
theorem dn_eq (d : Dev nD) :
    (bigSep Finset.univ fun c : Fin ((K (F := F)).nCore qK) => (P m).dn qK d c)
      = iprop((bigSep Finset.univ fun c : Fin 2 => bigSep Finset.univ fun s : Fin 16 => bigSep (Finset.range 18) (TileK16.xP d (crd c s) (xt m d)))
          ∗ (bigSep Finset.univ fun c : Fin 2 => bigSep Finset.univ fun s : Fin 16 => bigSep (Finset.range 18) (TileK16.oQ d (crd c s) (xt m d)))) := by
  have h1 : (bigSep Finset.univ fun c : Fin ((K (F := F)).nCore qK) => (P m).dn qK d c)
      = bigSep Finset.univ fun c : Fin ((K (F := F)).nCore qK) =>
          (fun c' : Fin 2 => bigSep (Finset.univ : Finset (Fin 16)) fun s => LaunchKI.tdQ m qK d c' s) (c.cast (LaunchKI.nCore_eq qK)) :=
    bigSep_congr fun c _ => bigSep_castSub (fun s => LaunchKI.tdQ m qK d (c.cast (LaunchKI.nCore_eq qK)) s)
  rw [h1, bigSep_castCore (fun c' : Fin 2 => bigSep (Finset.univ : Finset (Fin 16)) fun s => LaunchKI.tdQ m qK d c' s), ← bigSep_sep']
  refine bigSep_congr fun c _ => ?_
  rw [← bigSep_sep']
  refine bigSep_congr fun s _ => ?_
  rw [tdQ_eq]; rfl

omit [FloatOps F] in
theorem pair_sub : ({vx', vo'} : Finset (DevRef τ sig)) ⊆ tcRefs τ sig :=
  Finset.insert_subset (devRef_mem_tcRefs _) (Finset.singleton_subset_iff.mpr (devRef_mem_tcRefs _))

omit [FloatOps F] in
theorem held_pair (d : Dev nD) (V : Valuation τ sig (Elt F)) :
    (held (SparseCore.T d) ({vx', vo'} : Finset (DevRef τ sig)) V : sProp 𝕄) = iprop((ℓx d ↦{fullShare} V vx') ∗ (ℓo d ↦{fullShare} V vo')) := by
  unfold held; rw [SparseCore.bigSep_insert' (by decide), bigSep_singleton]

/-- What the call does to the TensorCore's buffers, as an operation on valuations: result q takes row q of the transpose. -/
abbrev opC (d : Dev nD) : HloOp τ sig (Elt F) := StableHlo.nullary main_v17 (Cert.Spec.row qK (xt m d))

/-- The call, from the TensorCore's buffers held at a valuation V whose transposed argument is the transpose: it
    leaves them at V but for result q, which holds row q of the transpose. -/
theorem step (κ : GSem nD τ sig → ℕ) (d : Dev nD) (V : Valuation τ sig (Elt F)) (hV : V vx' = xt m d) {Φ : PUnit → sProp 𝕄} :
    iprop((K (F := F)).ctx EH (P m) κ ∗ (K (F := F)).tcSt EH d qK.val ∗ held (SparseCore.T d) (tcRefs τ sig) V
        ∗ (((K (F := F)).tcSt EH d (qK.val + 1) ∗ held (SparseCore.T d) (tcRefs τ sig) ((opC m d).result V)) -∗ Φ ⟨⟩))
      ⊢ wp frame (wpE ((K (F := F)).defs (D (F := F))) 𝒱 (SparseCore.T d) none) Set.univ ((K (F := F)).run d qK) Φ := by
  rw [held_sub_split (SparseCore.T d) pair_sub V, held_pair, hV]
  iintro ⟨#Hctx, Hst, ⟨⟨Hx, Ho⟩, Hrest⟩, Hk⟩
  ihave Hx' := (pointsTo_split_subset (q := fullShare) (f := xt m d) (Finset.subset_univ (Pieces.rowSet qK.val : Finset (Idx (ℓx d))))).1 $$ Hx
  icases Hx' with ⟨Hrow, Hxrest⟩
  iapply ((K (F := F)).wp_run (D (F := F)) 𝒱 (EH := EH) (P := P m) κ d qK) $$ [Hst Hrow Ho Hk Hxrest Hrest]
  isplitr; · iexact Hctx
  isplitl [Hst]; · iexact Hst
  isplitl [Hrow Ho]
  · rw [st_eq]
    isplitl [Hrow]
    · iapply (Entails.of_eq (x_pieces d (xt m d))); iexact Hrow
    · iapply (o_pieces_ex d (V vo')); iexact Ho
  iintro ⟨Hst, Hdn⟩
  ihave Hdn' := (Entails.of_eq (dn_eq m d)) $$ Hdn
  icases Hdn' with ⟨Hrow, Ho⟩
  ihave Hrow' := (Entails.of_eq (x_pieces d (xt m d)).symm) $$ Hrow
  ihave Ho' := (Entails.of_eq (o_pieces_row d (xt m d))) $$ Ho
  ihave Hx := (pointsTo_split_subset (q := fullShare) (f := xt m d) (Finset.subset_univ (Pieces.rowSet qK.val : Finset (Idx (ℓx d))))).2 $$ [Hrow' Hxrest]
  · isplitl [Hrow']; · iexact Hrow'
    iexact Hxrest
  iapply Hk
  isplitl [Hst]; · iexact Hst
  rw [held_sub_split (SparseCore.T d) pair_sub ((opC m d).result V), held_pair,
    StableHlo.nullary_result_ne _ _ _ V (show (main_v0 : Ref sig .tc) ≠ main_v17 by decide), StableHlo.nullary_result, hV,
    held_congr (SparseCore.T d) (V := (opC m d).result V) (V' := V)
      (fun b hb => (opC m d).result_of_not_mem V (fun hw => (Finset.mem_sdiff.mp hb).2
        (Finset.mem_insert_of_mem (Finset.mem_singleton.mpr (Finset.mem_singleton.mp hw)))))]
  isplitl [Hx Ho']
  · isplitl [Hx]; · iexact Hx
    iexact Ho'
  · iexact Hrest

end Cert.Proof.CallK16

end
-- ==== Proof.CallPieces17.lean ====
/-
  The pieces of one call: row q of the transposed argument, held at some contents, is the 32 vector subcores' pieces of
  it; result q, held whole at some contents, is their pieces of it.
-/
import proofs.«206869_g37898791420194_cont_8to1_b_558_20_alg».proof.Proof.TileK17Defs
import proofs.«206869_g37898791420194_cont_8to1_b_558_20_alg».proof.Proof.LaunchPieces

noncomputable section

namespace Cert.Proof.CallK17

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic
open Cert.Proof.Pieces (crd)

variable {F : FTy → Type}

abbrev UU : Type := URounds (GSem nD τ sig) ℕ × Counters
local notation "𝕄" => MT nD τ sig (HIx 22) (Elt F) ℕ UU ℕ

/-- The call's number. -/
abbrev qK : Fin 22 := 17
theorem hq : qK.val < 22 := qK.isLt

abbrev vx' : DevRef τ sig := Proc.devRef .tc (main_v0 : Ref sig .tc)
abbrev vo' : DevRef τ sig := Proc.devRef .tc (main_v18 : Ref sig .tc)
abbrev ℓx (d : Dev nD) : Loc nD τ sig := (SparseCore.T d).loc main_v0
abbrev ℓo (d : Dev nD) : Loc nD τ sig := (SparseCore.T d).loc main_v18

variable [FloatOps F]

/-- Row q of the transposed argument, held at contents f, is the tasks' pieces of it. -/
theorem x_pieces (d : Dev nD) (f : Buf (Elt F) (ℓx d)) :
    (ℓx d ↦[(Pieces.rowSet qK.val : Finset (Idx (ℓx d)))]{fullShare} f : sProp 𝕄)
      = bigSep Finset.univ fun c : Fin 2 => bigSep Finset.univ fun s : Fin 16 => bigSep (Finset.range 18) (TileK17.xP d (crd c s) f) := by
  rw [← Pieces.in_cover qK.val hq, pointsTo_biUnion _ _ (Pieces.in_disj qK.val hq), Pieces.bigSep_tris]
  refine bigSep_congr fun c _ => bigSep_congr fun s _ => bigSep_congr fun n _ => ?_
  unfold TileK17.xP
  by_cases h : TileK17.valid (crd c s) n
  · rw [if_pos h, if_pos (show Pieces.pnum (c, s, n) < 500 from (TileK17.valid_iff _ _).mp h)]
    show _ = ((TileK17.inM (crd c s) n).view.loc (TileK17.thr d (crd c s)) ↦[(TileK17.inM (crd c s) n).view.set]{fullShare} f)
    rw [show (TileK17.inM (crd c s) n).view.set = Pieces.inSet qK.val hq (c, s, n) from View.set_slice_whole _ _]
  · rw [if_neg h, if_neg (show ¬ Pieces.pnum (c, s, n) < 500 from fun h' => h ((TileK17.valid_iff _ _).mpr h'))]
    rfl

/-- Result q, held whole at contents g, is the tasks' pieces of it at g. -/
theorem o_pieces (d : Dev nD) (g : Buf (Elt F) (ℓo d)) :
    (ℓo d ↦{fullShare} g : sProp 𝕄)
      = bigSep Finset.univ fun c : Fin 2 => bigSep Finset.univ fun s : Fin 16 => bigSep (Finset.range 18) fun n =>
          if TileK17.valid (crd c s) n then
            ((TileK17.outM (crd c s) n).view.loc (TileK17.thr d (crd c s)) ↦[(TileK17.outM (crd c s) n).view.set]{fullShare} g : sProp 𝕄)
          else iprop(emp) := by
  show (ℓo d ↦[(Finset.univ : Finset (Idx (ℓo d)))]{fullShare} g : sProp 𝕄) = _
  rw [← Pieces.out_cover, pointsTo_biUnion _ _ Pieces.out_disj, Pieces.bigSep_tris]
  refine bigSep_congr fun c _ => bigSep_congr fun s _ => bigSep_congr fun n _ => ?_
  by_cases h : TileK17.valid (crd c s) n
  · rw [if_pos h, if_pos (show Pieces.pnum (c, s, n) < 500 from (TileK17.valid_iff _ _).mp h)]
    rw [show (TileK17.outM (crd c s) n).view.set = Pieces.outSet (c, s, n) from View.set_slice_whole _ _]
  · rw [if_neg h, if_neg (show ¬ Pieces.pnum (c, s, n) < 500 from fun h' => h ((TileK17.valid_iff _ _).mpr h'))]
    rfl

end Cert.Proof.CallK17

end
-- ==== Proof.LaunchStep17.lean ====
/-
  One call of a copy kernel, run from the TensorCore: from the TensorCore's buffers held at a valuation whose transposed
  argument is the transpose, the call leaves them at the same valuation but for result q, which holds row q.
-/
import proofs.«206869_g37898791420194_cont_8to1_b_558_20_alg».proof.Proof.LaunchP
import proofs.«206869_g37898791420194_cont_8to1_b_558_20_alg».proof.Proof.CallPieces17

noncomputable section

namespace Cert.Proof.CallK17

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic
open Idealize.ShloMosaic.StableHlo (tcRefs devRef_mem_tcRefs held_sub_split held_congr)
open Cert.Proof.Pieces (crd)
open Cert.Proof.LaunchKI (K D 𝒱 𝒱₀ v₀ EH P xt)

variable {F : FTy → Type}

local notation "𝕄" => MT nD τ sig (HIx 22) (Elt F) ℕ UU ℕ

variable (m : (ℓ : Loc nD τ sig) → Buf (Elt F) ℓ)
variable [FloatOps F]

/-- Result q held whole at some contents gives every task its pieces of it, each at some contents. -/
theorem o_pieces_ex (d : Dev nD) (g : Buf (Elt F) (ℓo d)) :
    (ℓo d ↦{fullShare} g : sProp 𝕄)
      ⊢ bigSep Finset.univ fun c : Fin 2 => bigSep Finset.univ fun s : Fin 16 => bigSep (Finset.range 18) (TileK17.oP (F := F) d (crd c s)) := by
  rw [o_pieces d g]
  refine bigSep_mono fun c _ => bigSep_mono fun s _ => bigSep_mono fun n _ => ?_
  unfold TileK17.oP
  by_cases h : TileK17.valid (crd c s) n
  · rw [if_pos h, if_pos h]
    exact exists_intro (Φ := fun f => (((TileK17.outM (crd c s) n).view.loc (TileK17.thr d (crd c s)) ↦[(TileK17.outM (crd c s) n).view.set]{fullShare} f : sProp 𝕄))) g
  · rw [if_neg h, if_neg h]; exact BI.Entails.refl _

/-- The tasks' pieces of result q, each holding row q of f, are result q whole holding that row. -/
theorem o_pieces_row (d : Dev nD) (f : Buf (Elt F) (ℓx d)) :
    (bigSep Finset.univ fun c : Fin 2 => bigSep Finset.univ fun s : Fin 16 => bigSep (Finset.range 18) (TileK17.oQ d (crd c s) f))
      = (ℓo d ↦{fullShare} (Cert.Spec.row qK f : Buf (Elt F) (ℓo d)) : sProp 𝕄) := by
  rw [o_pieces d (Cert.Spec.row qK f : Buf (Elt F) (ℓo d))]
  rfl

omit [FloatOps F] in
/-- A separating conjunction over the call's grid of vector subcores, or of SparseCores, is one over sixteen, or two. -/
theorem bigSep_castSub (Φ : Fin 16 → sProp 𝕄) :
    (bigSep Finset.univ fun i : Fin ((K (F := F)).nSub qK) => Φ (i.cast (LaunchKI.nSub_eq qK))) = bigSep Finset.univ Φ :=
  bigSep_congr fun _ _ => congrArg Φ (Fin.ext rfl)
omit [FloatOps F] in
theorem bigSep_castCore (Φ : Fin 2 → sProp 𝕄) :
    (bigSep Finset.univ fun c : Fin ((K (F := F)).nCore qK) => Φ (c.cast (LaunchKI.nCore_eq qK))) = bigSep Finset.univ Φ :=
  bigSep_congr fun _ _ => congrArg Φ (Fin.ext rfl)

theorem goQ_eq (d : Dev nD) (c : Fin 2) (s : Fin 16) : LaunchKI.goQ m qK d c s = TileK17.goRes d (crd c s) (xt m d) := rfl
theorem tdQ_eq (d : Dev nD) (c : Fin 2) (s : Fin 16) : LaunchKI.tdQ m qK d c s = TileK17.tdRes d (crd c s) (xt m d) := rfl

/-- What the call takes for the two SparseCores: every task's pieces. -/
theorem st_eq (d : Dev nD) :
    (bigSep Finset.univ fun c : Fin ((K (F := F)).nCore qK) => (P m).st qK d c)
      = iprop((bigSep Finset.univ fun c : Fin 2 => bigSep Finset.univ fun s : Fin 16 => bigSep (Finset.range 18) (TileK17.xP d (crd c s) (xt m d)))
          ∗ (bigSep Finset.univ fun c : Fin 2 => bigSep Finset.univ fun s : Fin 16 => bigSep (Finset.range 18) (TileK17.oP (F := F) d (crd c s)))) := by
  have h1 : (bigSep Finset.univ fun c : Fin ((K (F := F)).nCore qK) => (P m).st qK d c)
      = bigSep Finset.univ fun c : Fin ((K (F := F)).nCore qK) =>
          (fun c' : Fin 2 => bigSep (Finset.univ : Finset (Fin 16)) fun s => LaunchKI.goQ m qK d c' s) (c.cast (LaunchKI.nCore_eq qK)) :=
    bigSep_congr fun c _ => bigSep_castSub (fun s => LaunchKI.goQ m qK d (c.cast (LaunchKI.nCore_eq qK)) s)
  rw [h1, bigSep_castCore (fun c' : Fin 2 => bigSep (Finset.univ : Finset (Fin 16)) fun s => LaunchKI.goQ m qK d c' s), ← bigSep_sep']
  refine bigSep_congr fun c _ => ?_
  rw [← bigSep_sep']
  refine bigSep_congr fun s _ => ?_
  rw [goQ_eq]; rfl

/-- What it hands back. -/
theorem dn_eq (d : Dev nD) :
    (bigSep Finset.univ fun c : Fin ((K (F := F)).nCore qK) => (P m).dn qK d c)
      = iprop((bigSep Finset.univ fun c : Fin 2 => bigSep Finset.univ fun s : Fin 16 => bigSep (Finset.range 18) (TileK17.xP d (crd c s) (xt m d)))
          ∗ (bigSep Finset.univ fun c : Fin 2 => bigSep Finset.univ fun s : Fin 16 => bigSep (Finset.range 18) (TileK17.oQ d (crd c s) (xt m d)))) := by
  have h1 : (bigSep Finset.univ fun c : Fin ((K (F := F)).nCore qK) => (P m).dn qK d c)
      = bigSep Finset.univ fun c : Fin ((K (F := F)).nCore qK) =>
          (fun c' : Fin 2 => bigSep (Finset.univ : Finset (Fin 16)) fun s => LaunchKI.tdQ m qK d c' s) (c.cast (LaunchKI.nCore_eq qK)) :=
    bigSep_congr fun c _ => bigSep_castSub (fun s => LaunchKI.tdQ m qK d (c.cast (LaunchKI.nCore_eq qK)) s)
  rw [h1, bigSep_castCore (fun c' : Fin 2 => bigSep (Finset.univ : Finset (Fin 16)) fun s => LaunchKI.tdQ m qK d c' s), ← bigSep_sep']
  refine bigSep_congr fun c _ => ?_
  rw [← bigSep_sep']
  refine bigSep_congr fun s _ => ?_
  rw [tdQ_eq]; rfl

omit [FloatOps F] in
theorem pair_sub : ({vx', vo'} : Finset (DevRef τ sig)) ⊆ tcRefs τ sig :=
  Finset.insert_subset (devRef_mem_tcRefs _) (Finset.singleton_subset_iff.mpr (devRef_mem_tcRefs _))

omit [FloatOps F] in
theorem held_pair (d : Dev nD) (V : Valuation τ sig (Elt F)) :
    (held (SparseCore.T d) ({vx', vo'} : Finset (DevRef τ sig)) V : sProp 𝕄) = iprop((ℓx d ↦{fullShare} V vx') ∗ (ℓo d ↦{fullShare} V vo')) := by
  unfold held; rw [SparseCore.bigSep_insert' (by decide), bigSep_singleton]

/-- What the call does to the TensorCore's buffers, as an operation on valuations: result q takes row q of the transpose. -/
abbrev opC (d : Dev nD) : HloOp τ sig (Elt F) := StableHlo.nullary main_v18 (Cert.Spec.row qK (xt m d))

/-- The call, from the TensorCore's buffers held at a valuation V whose transposed argument is the transpose: it
    leaves them at V but for result q, which holds row q of the transpose. -/
theorem step (κ : GSem nD τ sig → ℕ) (d : Dev nD) (V : Valuation τ sig (Elt F)) (hV : V vx' = xt m d) {Φ : PUnit → sProp 𝕄} :
    iprop((K (F := F)).ctx EH (P m) κ ∗ (K (F := F)).tcSt EH d qK.val ∗ held (SparseCore.T d) (tcRefs τ sig) V
        ∗ (((K (F := F)).tcSt EH d (qK.val + 1) ∗ held (SparseCore.T d) (tcRefs τ sig) ((opC m d).result V)) -∗ Φ ⟨⟩))
      ⊢ wp frame (wpE ((K (F := F)).defs (D (F := F))) 𝒱 (SparseCore.T d) none) Set.univ ((K (F := F)).run d qK) Φ := by
  rw [held_sub_split (SparseCore.T d) pair_sub V, held_pair, hV]
  iintro ⟨#Hctx, Hst, ⟨⟨Hx, Ho⟩, Hrest⟩, Hk⟩
  ihave Hx' := (pointsTo_split_subset (q := fullShare) (f := xt m d) (Finset.subset_univ (Pieces.rowSet qK.val : Finset (Idx (ℓx d))))).1 $$ Hx
  icases Hx' with ⟨Hrow, Hxrest⟩
  iapply ((K (F := F)).wp_run (D (F := F)) 𝒱 (EH := EH) (P := P m) κ d qK) $$ [Hst Hrow Ho Hk Hxrest Hrest]
  isplitr; · iexact Hctx
  isplitl [Hst]; · iexact Hst
  isplitl [Hrow Ho]
  · rw [st_eq]
    isplitl [Hrow]
    · iapply (Entails.of_eq (x_pieces d (xt m d))); iexact Hrow
    · iapply (o_pieces_ex d (V vo')); iexact Ho
  iintro ⟨Hst, Hdn⟩
  ihave Hdn' := (Entails.of_eq (dn_eq m d)) $$ Hdn
  icases Hdn' with ⟨Hrow, Ho⟩
  ihave Hrow' := (Entails.of_eq (x_pieces d (xt m d)).symm) $$ Hrow
  ihave Ho' := (Entails.of_eq (o_pieces_row d (xt m d))) $$ Ho
  ihave Hx := (pointsTo_split_subset (q := fullShare) (f := xt m d) (Finset.subset_univ (Pieces.rowSet qK.val : Finset (Idx (ℓx d))))).2 $$ [Hrow' Hxrest]
  · isplitl [Hrow']; · iexact Hrow'
    iexact Hxrest
  iapply Hk
  isplitl [Hst]; · iexact Hst
  rw [held_sub_split (SparseCore.T d) pair_sub ((opC m d).result V), held_pair,
    StableHlo.nullary_result_ne _ _ _ V (show (main_v0 : Ref sig .tc) ≠ main_v18 by decide), StableHlo.nullary_result, hV,
    held_congr (SparseCore.T d) (V := (opC m d).result V) (V' := V)
      (fun b hb => (opC m d).result_of_not_mem V (fun hw => (Finset.mem_sdiff.mp hb).2
        (Finset.mem_insert_of_mem (Finset.mem_singleton.mpr (Finset.mem_singleton.mp hw)))))]
  isplitl [Hx Ho']
  · isplitl [Hx]; · iexact Hx
    iexact Ho'
  · iexact Hrest

end Cert.Proof.CallK17

end
-- ==== Proof.CallPieces18.lean ====
/-
  The pieces of one call: row q of the transposed argument, held at some contents, is the 32 vector subcores' pieces of
  it; result q, held whole at some contents, is their pieces of it.
-/
import proofs.«206869_g37898791420194_cont_8to1_b_558_20_alg».proof.Proof.TileK18Defs
import proofs.«206869_g37898791420194_cont_8to1_b_558_20_alg».proof.Proof.LaunchPieces

noncomputable section

namespace Cert.Proof.CallK18

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic
open Cert.Proof.Pieces (crd)

variable {F : FTy → Type}

abbrev UU : Type := URounds (GSem nD τ sig) ℕ × Counters
local notation "𝕄" => MT nD τ sig (HIx 22) (Elt F) ℕ UU ℕ

/-- The call's number. -/
abbrev qK : Fin 22 := 18
theorem hq : qK.val < 22 := qK.isLt

abbrev vx' : DevRef τ sig := Proc.devRef .tc (main_v0 : Ref sig .tc)
abbrev vo' : DevRef τ sig := Proc.devRef .tc (main_v19 : Ref sig .tc)
abbrev ℓx (d : Dev nD) : Loc nD τ sig := (SparseCore.T d).loc main_v0
abbrev ℓo (d : Dev nD) : Loc nD τ sig := (SparseCore.T d).loc main_v19

variable [FloatOps F]

/-- Row q of the transposed argument, held at contents f, is the tasks' pieces of it. -/
theorem x_pieces (d : Dev nD) (f : Buf (Elt F) (ℓx d)) :
    (ℓx d ↦[(Pieces.rowSet qK.val : Finset (Idx (ℓx d)))]{fullShare} f : sProp 𝕄)
      = bigSep Finset.univ fun c : Fin 2 => bigSep Finset.univ fun s : Fin 16 => bigSep (Finset.range 18) (TileK18.xP d (crd c s) f) := by
  rw [← Pieces.in_cover qK.val hq, pointsTo_biUnion _ _ (Pieces.in_disj qK.val hq), Pieces.bigSep_tris]
  refine bigSep_congr fun c _ => bigSep_congr fun s _ => bigSep_congr fun n _ => ?_
  unfold TileK18.xP
  by_cases h : TileK18.valid (crd c s) n
  · rw [if_pos h, if_pos (show Pieces.pnum (c, s, n) < 500 from (TileK18.valid_iff _ _).mp h)]
    show _ = ((TileK18.inM (crd c s) n).view.loc (TileK18.thr d (crd c s)) ↦[(TileK18.inM (crd c s) n).view.set]{fullShare} f)
    rw [show (TileK18.inM (crd c s) n).view.set = Pieces.inSet qK.val hq (c, s, n) from View.set_slice_whole _ _]
  · rw [if_neg h, if_neg (show ¬ Pieces.pnum (c, s, n) < 500 from fun h' => h ((TileK18.valid_iff _ _).mpr h'))]
    rfl

/-- Result q, held whole at contents g, is the tasks' pieces of it at g. -/
theorem o_pieces (d : Dev nD) (g : Buf (Elt F) (ℓo d)) :
    (ℓo d ↦{fullShare} g : sProp 𝕄)
      = bigSep Finset.univ fun c : Fin 2 => bigSep Finset.univ fun s : Fin 16 => bigSep (Finset.range 18) fun n =>
          if TileK18.valid (crd c s) n then
            ((TileK18.outM (crd c s) n).view.loc (TileK18.thr d (crd c s)) ↦[(TileK18.outM (crd c s) n).view.set]{fullShare} g : sProp 𝕄)
          else iprop(emp) := by
  show (ℓo d ↦[(Finset.univ : Finset (Idx (ℓo d)))]{fullShare} g : sProp 𝕄) = _
  rw [← Pieces.out_cover, pointsTo_biUnion _ _ Pieces.out_disj, Pieces.bigSep_tris]
  refine bigSep_congr fun c _ => bigSep_congr fun s _ => bigSep_congr fun n _ => ?_
  by_cases h : TileK18.valid (crd c s) n
  · rw [if_pos h, if_pos (show Pieces.pnum (c, s, n) < 500 from (TileK18.valid_iff _ _).mp h)]
    rw [show (TileK18.outM (crd c s) n).view.set = Pieces.outSet (c, s, n) from View.set_slice_whole _ _]
  · rw [if_neg h, if_neg (show ¬ Pieces.pnum (c, s, n) < 500 from fun h' => h ((TileK18.valid_iff _ _).mpr h'))]
    rfl

end Cert.Proof.CallK18

end
-- ==== Proof.LaunchStep18.lean ====
/-
  One call of a copy kernel, run from the TensorCore: from the TensorCore's buffers held at a valuation whose transposed
  argument is the transpose, the call leaves them at the same valuation but for result q, which holds row q.
-/
import proofs.«206869_g37898791420194_cont_8to1_b_558_20_alg».proof.Proof.LaunchP
import proofs.«206869_g37898791420194_cont_8to1_b_558_20_alg».proof.Proof.CallPieces18

noncomputable section

namespace Cert.Proof.CallK18

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic
open Idealize.ShloMosaic.StableHlo (tcRefs devRef_mem_tcRefs held_sub_split held_congr)
open Cert.Proof.Pieces (crd)
open Cert.Proof.LaunchKI (K D 𝒱 𝒱₀ v₀ EH P xt)

variable {F : FTy → Type}

local notation "𝕄" => MT nD τ sig (HIx 22) (Elt F) ℕ UU ℕ

variable (m : (ℓ : Loc nD τ sig) → Buf (Elt F) ℓ)
variable [FloatOps F]

/-- Result q held whole at some contents gives every task its pieces of it, each at some contents. -/
theorem o_pieces_ex (d : Dev nD) (g : Buf (Elt F) (ℓo d)) :
    (ℓo d ↦{fullShare} g : sProp 𝕄)
      ⊢ bigSep Finset.univ fun c : Fin 2 => bigSep Finset.univ fun s : Fin 16 => bigSep (Finset.range 18) (TileK18.oP (F := F) d (crd c s)) := by
  rw [o_pieces d g]
  refine bigSep_mono fun c _ => bigSep_mono fun s _ => bigSep_mono fun n _ => ?_
  unfold TileK18.oP
  by_cases h : TileK18.valid (crd c s) n
  · rw [if_pos h, if_pos h]
    exact exists_intro (Φ := fun f => (((TileK18.outM (crd c s) n).view.loc (TileK18.thr d (crd c s)) ↦[(TileK18.outM (crd c s) n).view.set]{fullShare} f : sProp 𝕄))) g
  · rw [if_neg h, if_neg h]; exact BI.Entails.refl _

/-- The tasks' pieces of result q, each holding row q of f, are result q whole holding that row. -/
theorem o_pieces_row (d : Dev nD) (f : Buf (Elt F) (ℓx d)) :
    (bigSep Finset.univ fun c : Fin 2 => bigSep Finset.univ fun s : Fin 16 => bigSep (Finset.range 18) (TileK18.oQ d (crd c s) f))
      = (ℓo d ↦{fullShare} (Cert.Spec.row qK f : Buf (Elt F) (ℓo d)) : sProp 𝕄) := by
  rw [o_pieces d (Cert.Spec.row qK f : Buf (Elt F) (ℓo d))]
  rfl

omit [FloatOps F] in
/-- A separating conjunction over the call's grid of vector subcores, or of SparseCores, is one over sixteen, or two. -/
theorem bigSep_castSub (Φ : Fin 16 → sProp 𝕄) :
    (bigSep Finset.univ fun i : Fin ((K (F := F)).nSub qK) => Φ (i.cast (LaunchKI.nSub_eq qK))) = bigSep Finset.univ Φ :=
  bigSep_congr fun _ _ => congrArg Φ (Fin.ext rfl)
omit [FloatOps F] in
theorem bigSep_castCore (Φ : Fin 2 → sProp 𝕄) :
    (bigSep Finset.univ fun c : Fin ((K (F := F)).nCore qK) => Φ (c.cast (LaunchKI.nCore_eq qK))) = bigSep Finset.univ Φ :=
  bigSep_congr fun _ _ => congrArg Φ (Fin.ext rfl)

theorem goQ_eq (d : Dev nD) (c : Fin 2) (s : Fin 16) : LaunchKI.goQ m qK d c s = TileK18.goRes d (crd c s) (xt m d) := rfl
theorem tdQ_eq (d : Dev nD) (c : Fin 2) (s : Fin 16) : LaunchKI.tdQ m qK d c s = TileK18.tdRes d (crd c s) (xt m d) := rfl

/-- What the call takes for the two SparseCores: every task's pieces. -/
theorem st_eq (d : Dev nD) :
    (bigSep Finset.univ fun c : Fin ((K (F := F)).nCore qK) => (P m).st qK d c)
      = iprop((bigSep Finset.univ fun c : Fin 2 => bigSep Finset.univ fun s : Fin 16 => bigSep (Finset.range 18) (TileK18.xP d (crd c s) (xt m d)))
          ∗ (bigSep Finset.univ fun c : Fin 2 => bigSep Finset.univ fun s : Fin 16 => bigSep (Finset.range 18) (TileK18.oP (F := F) d (crd c s)))) := by
  have h1 : (bigSep Finset.univ fun c : Fin ((K (F := F)).nCore qK) => (P m).st qK d c)
      = bigSep Finset.univ fun c : Fin ((K (F := F)).nCore qK) =>
          (fun c' : Fin 2 => bigSep (Finset.univ : Finset (Fin 16)) fun s => LaunchKI.goQ m qK d c' s) (c.cast (LaunchKI.nCore_eq qK)) :=
    bigSep_congr fun c _ => bigSep_castSub (fun s => LaunchKI.goQ m qK d (c.cast (LaunchKI.nCore_eq qK)) s)
  rw [h1, bigSep_castCore (fun c' : Fin 2 => bigSep (Finset.univ : Finset (Fin 16)) fun s => LaunchKI.goQ m qK d c' s), ← bigSep_sep']
  refine bigSep_congr fun c _ => ?_
  rw [← bigSep_sep']
  refine bigSep_congr fun s _ => ?_
  rw [goQ_eq]; rfl

/-- What it hands back. -/
theorem dn_eq (d : Dev nD) :
    (bigSep Finset.univ fun c : Fin ((K (F := F)).nCore qK) => (P m).dn qK d c)
      = iprop((bigSep Finset.univ fun c : Fin 2 => bigSep Finset.univ fun s : Fin 16 => bigSep (Finset.range 18) (TileK18.xP d (crd c s) (xt m d)))
          ∗ (bigSep Finset.univ fun c : Fin 2 => bigSep Finset.univ fun s : Fin 16 => bigSep (Finset.range 18) (TileK18.oQ d (crd c s) (xt m d)))) := by
  have h1 : (bigSep Finset.univ fun c : Fin ((K (F := F)).nCore qK) => (P m).dn qK d c)
      = bigSep Finset.univ fun c : Fin ((K (F := F)).nCore qK) =>
          (fun c' : Fin 2 => bigSep (Finset.univ : Finset (Fin 16)) fun s => LaunchKI.tdQ m qK d c' s) (c.cast (LaunchKI.nCore_eq qK)) :=
    bigSep_congr fun c _ => bigSep_castSub (fun s => LaunchKI.tdQ m qK d (c.cast (LaunchKI.nCore_eq qK)) s)
  rw [h1, bigSep_castCore (fun c' : Fin 2 => bigSep (Finset.univ : Finset (Fin 16)) fun s => LaunchKI.tdQ m qK d c' s), ← bigSep_sep']
  refine bigSep_congr fun c _ => ?_
  rw [← bigSep_sep']
  refine bigSep_congr fun s _ => ?_
  rw [tdQ_eq]; rfl

omit [FloatOps F] in
theorem pair_sub : ({vx', vo'} : Finset (DevRef τ sig)) ⊆ tcRefs τ sig :=
  Finset.insert_subset (devRef_mem_tcRefs _) (Finset.singleton_subset_iff.mpr (devRef_mem_tcRefs _))

omit [FloatOps F] in
theorem held_pair (d : Dev nD) (V : Valuation τ sig (Elt F)) :
    (held (SparseCore.T d) ({vx', vo'} : Finset (DevRef τ sig)) V : sProp 𝕄) = iprop((ℓx d ↦{fullShare} V vx') ∗ (ℓo d ↦{fullShare} V vo')) := by
  unfold held; rw [SparseCore.bigSep_insert' (by decide), bigSep_singleton]

/-- What the call does to the TensorCore's buffers, as an operation on valuations: result q takes row q of the transpose. -/
abbrev opC (d : Dev nD) : HloOp τ sig (Elt F) := StableHlo.nullary main_v19 (Cert.Spec.row qK (xt m d))

/-- The call, from the TensorCore's buffers held at a valuation V whose transposed argument is the transpose: it
    leaves them at V but for result q, which holds row q of the transpose. -/
theorem step (κ : GSem nD τ sig → ℕ) (d : Dev nD) (V : Valuation τ sig (Elt F)) (hV : V vx' = xt m d) {Φ : PUnit → sProp 𝕄} :
    iprop((K (F := F)).ctx EH (P m) κ ∗ (K (F := F)).tcSt EH d qK.val ∗ held (SparseCore.T d) (tcRefs τ sig) V
        ∗ (((K (F := F)).tcSt EH d (qK.val + 1) ∗ held (SparseCore.T d) (tcRefs τ sig) ((opC m d).result V)) -∗ Φ ⟨⟩))
      ⊢ wp frame (wpE ((K (F := F)).defs (D (F := F))) 𝒱 (SparseCore.T d) none) Set.univ ((K (F := F)).run d qK) Φ := by
  rw [held_sub_split (SparseCore.T d) pair_sub V, held_pair, hV]
  iintro ⟨#Hctx, Hst, ⟨⟨Hx, Ho⟩, Hrest⟩, Hk⟩
  ihave Hx' := (pointsTo_split_subset (q := fullShare) (f := xt m d) (Finset.subset_univ (Pieces.rowSet qK.val : Finset (Idx (ℓx d))))).1 $$ Hx
  icases Hx' with ⟨Hrow, Hxrest⟩
  iapply ((K (F := F)).wp_run (D (F := F)) 𝒱 (EH := EH) (P := P m) κ d qK) $$ [Hst Hrow Ho Hk Hxrest Hrest]
  isplitr; · iexact Hctx
  isplitl [Hst]; · iexact Hst
  isplitl [Hrow Ho]
  · rw [st_eq]
    isplitl [Hrow]
    · iapply (Entails.of_eq (x_pieces d (xt m d))); iexact Hrow
    · iapply (o_pieces_ex d (V vo')); iexact Ho
  iintro ⟨Hst, Hdn⟩
  ihave Hdn' := (Entails.of_eq (dn_eq m d)) $$ Hdn
  icases Hdn' with ⟨Hrow, Ho⟩
  ihave Hrow' := (Entails.of_eq (x_pieces d (xt m d)).symm) $$ Hrow
  ihave Ho' := (Entails.of_eq (o_pieces_row d (xt m d))) $$ Ho
  ihave Hx := (pointsTo_split_subset (q := fullShare) (f := xt m d) (Finset.subset_univ (Pieces.rowSet qK.val : Finset (Idx (ℓx d))))).2 $$ [Hrow' Hxrest]
  · isplitl [Hrow']; · iexact Hrow'
    iexact Hxrest
  iapply Hk
  isplitl [Hst]; · iexact Hst
  rw [held_sub_split (SparseCore.T d) pair_sub ((opC m d).result V), held_pair,
    StableHlo.nullary_result_ne _ _ _ V (show (main_v0 : Ref sig .tc) ≠ main_v19 by decide), StableHlo.nullary_result, hV,
    held_congr (SparseCore.T d) (V := (opC m d).result V) (V' := V)
      (fun b hb => (opC m d).result_of_not_mem V (fun hw => (Finset.mem_sdiff.mp hb).2
        (Finset.mem_insert_of_mem (Finset.mem_singleton.mpr (Finset.mem_singleton.mp hw)))))]
  isplitl [Hx Ho']
  · isplitl [Hx]; · iexact Hx
    iexact Ho'
  · iexact Hrest

end Cert.Proof.CallK18

end
-- ==== Proof.CallPieces19.lean ====
/-
  The pieces of one call: row q of the transposed argument, held at some contents, is the 32 vector subcores' pieces of
  it; result q, held whole at some contents, is their pieces of it.
-/
import proofs.«206869_g37898791420194_cont_8to1_b_558_20_alg».proof.Proof.TileK19Defs
import proofs.«206869_g37898791420194_cont_8to1_b_558_20_alg».proof.Proof.LaunchPieces

noncomputable section

namespace Cert.Proof.CallK19

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic
open Cert.Proof.Pieces (crd)

variable {F : FTy → Type}

abbrev UU : Type := URounds (GSem nD τ sig) ℕ × Counters
local notation "𝕄" => MT nD τ sig (HIx 22) (Elt F) ℕ UU ℕ

/-- The call's number. -/
abbrev qK : Fin 22 := 19
theorem hq : qK.val < 22 := qK.isLt

abbrev vx' : DevRef τ sig := Proc.devRef .tc (main_v0 : Ref sig .tc)
abbrev vo' : DevRef τ sig := Proc.devRef .tc (main_v20 : Ref sig .tc)
abbrev ℓx (d : Dev nD) : Loc nD τ sig := (SparseCore.T d).loc main_v0
abbrev ℓo (d : Dev nD) : Loc nD τ sig := (SparseCore.T d).loc main_v20

variable [FloatOps F]

/-- Row q of the transposed argument, held at contents f, is the tasks' pieces of it. -/
theorem x_pieces (d : Dev nD) (f : Buf (Elt F) (ℓx d)) :
    (ℓx d ↦[(Pieces.rowSet qK.val : Finset (Idx (ℓx d)))]{fullShare} f : sProp 𝕄)
      = bigSep Finset.univ fun c : Fin 2 => bigSep Finset.univ fun s : Fin 16 => bigSep (Finset.range 18) (TileK19.xP d (crd c s) f) := by
  rw [← Pieces.in_cover qK.val hq, pointsTo_biUnion _ _ (Pieces.in_disj qK.val hq), Pieces.bigSep_tris]
  refine bigSep_congr fun c _ => bigSep_congr fun s _ => bigSep_congr fun n _ => ?_
  unfold TileK19.xP
  by_cases h : TileK19.valid (crd c s) n
  · rw [if_pos h, if_pos (show Pieces.pnum (c, s, n) < 500 from (TileK19.valid_iff _ _).mp h)]
    show _ = ((TileK19.inM (crd c s) n).view.loc (TileK19.thr d (crd c s)) ↦[(TileK19.inM (crd c s) n).view.set]{fullShare} f)
    rw [show (TileK19.inM (crd c s) n).view.set = Pieces.inSet qK.val hq (c, s, n) from View.set_slice_whole _ _]
  · rw [if_neg h, if_neg (show ¬ Pieces.pnum (c, s, n) < 500 from fun h' => h ((TileK19.valid_iff _ _).mpr h'))]
    rfl

/-- Result q, held whole at contents g, is the tasks' pieces of it at g. -/
theorem o_pieces (d : Dev nD) (g : Buf (Elt F) (ℓo d)) :
    (ℓo d ↦{fullShare} g : sProp 𝕄)
      = bigSep Finset.univ fun c : Fin 2 => bigSep Finset.univ fun s : Fin 16 => bigSep (Finset.range 18) fun n =>
          if TileK19.valid (crd c s) n then
            ((TileK19.outM (crd c s) n).view.loc (TileK19.thr d (crd c s)) ↦[(TileK19.outM (crd c s) n).view.set]{fullShare} g : sProp 𝕄)
          else iprop(emp) := by
  show (ℓo d ↦[(Finset.univ : Finset (Idx (ℓo d)))]{fullShare} g : sProp 𝕄) = _
  rw [← Pieces.out_cover, pointsTo_biUnion _ _ Pieces.out_disj, Pieces.bigSep_tris]
  refine bigSep_congr fun c _ => bigSep_congr fun s _ => bigSep_congr fun n _ => ?_
  by_cases h : TileK19.valid (crd c s) n
  · rw [if_pos h, if_pos (show Pieces.pnum (c, s, n) < 500 from (TileK19.valid_iff _ _).mp h)]
    rw [show (TileK19.outM (crd c s) n).view.set = Pieces.outSet (c, s, n) from View.set_slice_whole _ _]
  · rw [if_neg h, if_neg (show ¬ Pieces.pnum (c, s, n) < 500 from fun h' => h ((TileK19.valid_iff _ _).mpr h'))]
    rfl

end Cert.Proof.CallK19

end
-- ==== Proof.LaunchStep19.lean ====
/-
  One call of a copy kernel, run from the TensorCore: from the TensorCore's buffers held at a valuation whose transposed
  argument is the transpose, the call leaves them at the same valuation but for result q, which holds row q.
-/
import proofs.«206869_g37898791420194_cont_8to1_b_558_20_alg».proof.Proof.LaunchP
import proofs.«206869_g37898791420194_cont_8to1_b_558_20_alg».proof.Proof.CallPieces19

noncomputable section

namespace Cert.Proof.CallK19

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic
open Idealize.ShloMosaic.StableHlo (tcRefs devRef_mem_tcRefs held_sub_split held_congr)
open Cert.Proof.Pieces (crd)
open Cert.Proof.LaunchKI (K D 𝒱 𝒱₀ v₀ EH P xt)

variable {F : FTy → Type}

local notation "𝕄" => MT nD τ sig (HIx 22) (Elt F) ℕ UU ℕ

variable (m : (ℓ : Loc nD τ sig) → Buf (Elt F) ℓ)
variable [FloatOps F]

/-- Result q held whole at some contents gives every task its pieces of it, each at some contents. -/
theorem o_pieces_ex (d : Dev nD) (g : Buf (Elt F) (ℓo d)) :
    (ℓo d ↦{fullShare} g : sProp 𝕄)
      ⊢ bigSep Finset.univ fun c : Fin 2 => bigSep Finset.univ fun s : Fin 16 => bigSep (Finset.range 18) (TileK19.oP (F := F) d (crd c s)) := by
  rw [o_pieces d g]
  refine bigSep_mono fun c _ => bigSep_mono fun s _ => bigSep_mono fun n _ => ?_
  unfold TileK19.oP
  by_cases h : TileK19.valid (crd c s) n
  · rw [if_pos h, if_pos h]
    exact exists_intro (Φ := fun f => (((TileK19.outM (crd c s) n).view.loc (TileK19.thr d (crd c s)) ↦[(TileK19.outM (crd c s) n).view.set]{fullShare} f : sProp 𝕄))) g
  · rw [if_neg h, if_neg h]; exact BI.Entails.refl _

/-- The tasks' pieces of result q, each holding row q of f, are result q whole holding that row. -/
theorem o_pieces_row (d : Dev nD) (f : Buf (Elt F) (ℓx d)) :
    (bigSep Finset.univ fun c : Fin 2 => bigSep Finset.univ fun s : Fin 16 => bigSep (Finset.range 18) (TileK19.oQ d (crd c s) f))
      = (ℓo d ↦{fullShare} (Cert.Spec.row qK f : Buf (Elt F) (ℓo d)) : sProp 𝕄) := by
  rw [o_pieces d (Cert.Spec.row qK f : Buf (Elt F) (ℓo d))]
  rfl

omit [FloatOps F] in
/-- A separating conjunction over the call's grid of vector subcores, or of SparseCores, is one over sixteen, or two. -/
theorem bigSep_castSub (Φ : Fin 16 → sProp 𝕄) :
    (bigSep Finset.univ fun i : Fin ((K (F := F)).nSub qK) => Φ (i.cast (LaunchKI.nSub_eq qK))) = bigSep Finset.univ Φ :=
  bigSep_congr fun _ _ => congrArg Φ (Fin.ext rfl)
omit [FloatOps F] in
theorem bigSep_castCore (Φ : Fin 2 → sProp 𝕄) :
    (bigSep Finset.univ fun c : Fin ((K (F := F)).nCore qK) => Φ (c.cast (LaunchKI.nCore_eq qK))) = bigSep Finset.univ Φ :=
  bigSep_congr fun _ _ => congrArg Φ (Fin.ext rfl)

theorem goQ_eq (d : Dev nD) (c : Fin 2) (s : Fin 16) : LaunchKI.goQ m qK d c s = TileK19.goRes d (crd c s) (xt m d) := rfl
theorem tdQ_eq (d : Dev nD) (c : Fin 2) (s : Fin 16) : LaunchKI.tdQ m qK d c s = TileK19.tdRes d (crd c s) (xt m d) := rfl

/-- What the call takes for the two SparseCores: every task's pieces. -/
theorem st_eq (d : Dev nD) :
    (bigSep Finset.univ fun c : Fin ((K (F := F)).nCore qK) => (P m).st qK d c)
      = iprop((bigSep Finset.univ fun c : Fin 2 => bigSep Finset.univ fun s : Fin 16 => bigSep (Finset.range 18) (TileK19.xP d (crd c s) (xt m d)))
          ∗ (bigSep Finset.univ fun c : Fin 2 => bigSep Finset.univ fun s : Fin 16 => bigSep (Finset.range 18) (TileK19.oP (F := F) d (crd c s)))) := by
  have h1 : (bigSep Finset.univ fun c : Fin ((K (F := F)).nCore qK) => (P m).st qK d c)
      = bigSep Finset.univ fun c : Fin ((K (F := F)).nCore qK) =>
          (fun c' : Fin 2 => bigSep (Finset.univ : Finset (Fin 16)) fun s => LaunchKI.goQ m qK d c' s) (c.cast (LaunchKI.nCore_eq qK)) :=
    bigSep_congr fun c _ => bigSep_castSub (fun s => LaunchKI.goQ m qK d (c.cast (LaunchKI.nCore_eq qK)) s)
  rw [h1, bigSep_castCore (fun c' : Fin 2 => bigSep (Finset.univ : Finset (Fin 16)) fun s => LaunchKI.goQ m qK d c' s), ← bigSep_sep']
  refine bigSep_congr fun c _ => ?_
  rw [← bigSep_sep']
  refine bigSep_congr fun s _ => ?_
  rw [goQ_eq]; rfl

/-- What it hands back. -/
theorem dn_eq (d : Dev nD) :
    (bigSep Finset.univ fun c : Fin ((K (F := F)).nCore qK) => (P m).dn qK d c)
      = iprop((bigSep Finset.univ fun c : Fin 2 => bigSep Finset.univ fun s : Fin 16 => bigSep (Finset.range 18) (TileK19.xP d (crd c s) (xt m d)))
          ∗ (bigSep Finset.univ fun c : Fin 2 => bigSep Finset.univ fun s : Fin 16 => bigSep (Finset.range 18) (TileK19.oQ d (crd c s) (xt m d)))) := by
  have h1 : (bigSep Finset.univ fun c : Fin ((K (F := F)).nCore qK) => (P m).dn qK d c)
      = bigSep Finset.univ fun c : Fin ((K (F := F)).nCore qK) =>
          (fun c' : Fin 2 => bigSep (Finset.univ : Finset (Fin 16)) fun s => LaunchKI.tdQ m qK d c' s) (c.cast (LaunchKI.nCore_eq qK)) :=
    bigSep_congr fun c _ => bigSep_castSub (fun s => LaunchKI.tdQ m qK d (c.cast (LaunchKI.nCore_eq qK)) s)
  rw [h1, bigSep_castCore (fun c' : Fin 2 => bigSep (Finset.univ : Finset (Fin 16)) fun s => LaunchKI.tdQ m qK d c' s), ← bigSep_sep']
  refine bigSep_congr fun c _ => ?_
  rw [← bigSep_sep']
  refine bigSep_congr fun s _ => ?_
  rw [tdQ_eq]; rfl

omit [FloatOps F] in
theorem pair_sub : ({vx', vo'} : Finset (DevRef τ sig)) ⊆ tcRefs τ sig :=
  Finset.insert_subset (devRef_mem_tcRefs _) (Finset.singleton_subset_iff.mpr (devRef_mem_tcRefs _))

omit [FloatOps F] in
theorem held_pair (d : Dev nD) (V : Valuation τ sig (Elt F)) :
    (held (SparseCore.T d) ({vx', vo'} : Finset (DevRef τ sig)) V : sProp 𝕄) = iprop((ℓx d ↦{fullShare} V vx') ∗ (ℓo d ↦{fullShare} V vo')) := by
  unfold held; rw [SparseCore.bigSep_insert' (by decide), bigSep_singleton]

/-- What the call does to the TensorCore's buffers, as an operation on valuations: result q takes row q of the transpose. -/
abbrev opC (d : Dev nD) : HloOp τ sig (Elt F) := StableHlo.nullary main_v20 (Cert.Spec.row qK (xt m d))

/-- The call, from the TensorCore's buffers held at a valuation V whose transposed argument is the transpose: it
    leaves them at V but for result q, which holds row q of the transpose. -/
theorem step (κ : GSem nD τ sig → ℕ) (d : Dev nD) (V : Valuation τ sig (Elt F)) (hV : V vx' = xt m d) {Φ : PUnit → sProp 𝕄} :
    iprop((K (F := F)).ctx EH (P m) κ ∗ (K (F := F)).tcSt EH d qK.val ∗ held (SparseCore.T d) (tcRefs τ sig) V
        ∗ (((K (F := F)).tcSt EH d (qK.val + 1) ∗ held (SparseCore.T d) (tcRefs τ sig) ((opC m d).result V)) -∗ Φ ⟨⟩))
      ⊢ wp frame (wpE ((K (F := F)).defs (D (F := F))) 𝒱 (SparseCore.T d) none) Set.univ ((K (F := F)).run d qK) Φ := by
  rw [held_sub_split (SparseCore.T d) pair_sub V, held_pair, hV]
  iintro ⟨#Hctx, Hst, ⟨⟨Hx, Ho⟩, Hrest⟩, Hk⟩
  ihave Hx' := (pointsTo_split_subset (q := fullShare) (f := xt m d) (Finset.subset_univ (Pieces.rowSet qK.val : Finset (Idx (ℓx d))))).1 $$ Hx
  icases Hx' with ⟨Hrow, Hxrest⟩
  iapply ((K (F := F)).wp_run (D (F := F)) 𝒱 (EH := EH) (P := P m) κ d qK) $$ [Hst Hrow Ho Hk Hxrest Hrest]
  isplitr; · iexact Hctx
  isplitl [Hst]; · iexact Hst
  isplitl [Hrow Ho]
  · rw [st_eq]
    isplitl [Hrow]
    · iapply (Entails.of_eq (x_pieces d (xt m d))); iexact Hrow
    · iapply (o_pieces_ex d (V vo')); iexact Ho
  iintro ⟨Hst, Hdn⟩
  ihave Hdn' := (Entails.of_eq (dn_eq m d)) $$ Hdn
  icases Hdn' with ⟨Hrow, Ho⟩
  ihave Hrow' := (Entails.of_eq (x_pieces d (xt m d)).symm) $$ Hrow
  ihave Ho' := (Entails.of_eq (o_pieces_row d (xt m d))) $$ Ho
  ihave Hx := (pointsTo_split_subset (q := fullShare) (f := xt m d) (Finset.subset_univ (Pieces.rowSet qK.val : Finset (Idx (ℓx d))))).2 $$ [Hrow' Hxrest]
  · isplitl [Hrow']; · iexact Hrow'
    iexact Hxrest
  iapply Hk
  isplitl [Hst]; · iexact Hst
  rw [held_sub_split (SparseCore.T d) pair_sub ((opC m d).result V), held_pair,
    StableHlo.nullary_result_ne _ _ _ V (show (main_v0 : Ref sig .tc) ≠ main_v20 by decide), StableHlo.nullary_result, hV,
    held_congr (SparseCore.T d) (V := (opC m d).result V) (V' := V)
      (fun b hb => (opC m d).result_of_not_mem V (fun hw => (Finset.mem_sdiff.mp hb).2
        (Finset.mem_insert_of_mem (Finset.mem_singleton.mpr (Finset.mem_singleton.mp hw)))))]
  isplitl [Hx Ho']
  · isplitl [Hx]; · iexact Hx
    iexact Ho'
  · iexact Hrest

end Cert.Proof.CallK19

end
-- ==== Proof.CallPieces20.lean ====
/-
  The pieces of one call: row q of the transposed argument, held at some contents, is the 32 vector subcores' pieces of
  it; result q, held whole at some contents, is their pieces of it.
-/
import proofs.«206869_g37898791420194_cont_8to1_b_558_20_alg».proof.Proof.TileK20Defs
import proofs.«206869_g37898791420194_cont_8to1_b_558_20_alg».proof.Proof.LaunchPieces

noncomputable section

namespace Cert.Proof.CallK20

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic
open Cert.Proof.Pieces (crd)

variable {F : FTy → Type}

abbrev UU : Type := URounds (GSem nD τ sig) ℕ × Counters
local notation "𝕄" => MT nD τ sig (HIx 22) (Elt F) ℕ UU ℕ

/-- The call's number. -/
abbrev qK : Fin 22 := 20
theorem hq : qK.val < 22 := qK.isLt

abbrev vx' : DevRef τ sig := Proc.devRef .tc (main_v0 : Ref sig .tc)
abbrev vo' : DevRef τ sig := Proc.devRef .tc (main_v21 : Ref sig .tc)
abbrev ℓx (d : Dev nD) : Loc nD τ sig := (SparseCore.T d).loc main_v0
abbrev ℓo (d : Dev nD) : Loc nD τ sig := (SparseCore.T d).loc main_v21

variable [FloatOps F]

/-- Row q of the transposed argument, held at contents f, is the tasks' pieces of it. -/
theorem x_pieces (d : Dev nD) (f : Buf (Elt F) (ℓx d)) :
    (ℓx d ↦[(Pieces.rowSet qK.val : Finset (Idx (ℓx d)))]{fullShare} f : sProp 𝕄)
      = bigSep Finset.univ fun c : Fin 2 => bigSep Finset.univ fun s : Fin 16 => bigSep (Finset.range 18) (TileK20.xP d (crd c s) f) := by
  rw [← Pieces.in_cover qK.val hq, pointsTo_biUnion _ _ (Pieces.in_disj qK.val hq), Pieces.bigSep_tris]
  refine bigSep_congr fun c _ => bigSep_congr fun s _ => bigSep_congr fun n _ => ?_
  unfold TileK20.xP
  by_cases h : TileK20.valid (crd c s) n
  · rw [if_pos h, if_pos (show Pieces.pnum (c, s, n) < 500 from (TileK20.valid_iff _ _).mp h)]
    show _ = ((TileK20.inM (crd c s) n).view.loc (TileK20.thr d (crd c s)) ↦[(TileK20.inM (crd c s) n).view.set]{fullShare} f)
    rw [show (TileK20.inM (crd c s) n).view.set = Pieces.inSet qK.val hq (c, s, n) from View.set_slice_whole _ _]
  · rw [if_neg h, if_neg (show ¬ Pieces.pnum (c, s, n) < 500 from fun h' => h ((TileK20.valid_iff _ _).mpr h'))]
    rfl

/-- Result q, held whole at contents g, is the tasks' pieces of it at g. -/
theorem o_pieces (d : Dev nD) (g : Buf (Elt F) (ℓo d)) :
    (ℓo d ↦{fullShare} g : sProp 𝕄)
      = bigSep Finset.univ fun c : Fin 2 => bigSep Finset.univ fun s : Fin 16 => bigSep (Finset.range 18) fun n =>
          if TileK20.valid (crd c s) n then
            ((TileK20.outM (crd c s) n).view.loc (TileK20.thr d (crd c s)) ↦[(TileK20.outM (crd c s) n).view.set]{fullShare} g : sProp 𝕄)
          else iprop(emp) := by
  show (ℓo d ↦[(Finset.univ : Finset (Idx (ℓo d)))]{fullShare} g : sProp 𝕄) = _
  rw [← Pieces.out_cover, pointsTo_biUnion _ _ Pieces.out_disj, Pieces.bigSep_tris]
  refine bigSep_congr fun c _ => bigSep_congr fun s _ => bigSep_congr fun n _ => ?_
  by_cases h : TileK20.valid (crd c s) n
  · rw [if_pos h, if_pos (show Pieces.pnum (c, s, n) < 500 from (TileK20.valid_iff _ _).mp h)]
    rw [show (TileK20.outM (crd c s) n).view.set = Pieces.outSet (c, s, n) from View.set_slice_whole _ _]
  · rw [if_neg h, if_neg (show ¬ Pieces.pnum (c, s, n) < 500 from fun h' => h ((TileK20.valid_iff _ _).mpr h'))]
    rfl

end Cert.Proof.CallK20

end
-- ==== Proof.LaunchStep20.lean ====
/-
  One call of a copy kernel, run from the TensorCore: from the TensorCore's buffers held at a valuation whose transposed
  argument is the transpose, the call leaves them at the same valuation but for result q, which holds row q.
-/
import proofs.«206869_g37898791420194_cont_8to1_b_558_20_alg».proof.Proof.LaunchP
import proofs.«206869_g37898791420194_cont_8to1_b_558_20_alg».proof.Proof.CallPieces20

noncomputable section

namespace Cert.Proof.CallK20

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic
open Idealize.ShloMosaic.StableHlo (tcRefs devRef_mem_tcRefs held_sub_split held_congr)
open Cert.Proof.Pieces (crd)
open Cert.Proof.LaunchKI (K D 𝒱 𝒱₀ v₀ EH P xt)

variable {F : FTy → Type}

local notation "𝕄" => MT nD τ sig (HIx 22) (Elt F) ℕ UU ℕ

variable (m : (ℓ : Loc nD τ sig) → Buf (Elt F) ℓ)
variable [FloatOps F]

/-- Result q held whole at some contents gives every task its pieces of it, each at some contents. -/
theorem o_pieces_ex (d : Dev nD) (g : Buf (Elt F) (ℓo d)) :
    (ℓo d ↦{fullShare} g : sProp 𝕄)
      ⊢ bigSep Finset.univ fun c : Fin 2 => bigSep Finset.univ fun s : Fin 16 => bigSep (Finset.range 18) (TileK20.oP (F := F) d (crd c s)) := by
  rw [o_pieces d g]
  refine bigSep_mono fun c _ => bigSep_mono fun s _ => bigSep_mono fun n _ => ?_
  unfold TileK20.oP
  by_cases h : TileK20.valid (crd c s) n
  · rw [if_pos h, if_pos h]
    exact exists_intro (Φ := fun f => (((TileK20.outM (crd c s) n).view.loc (TileK20.thr d (crd c s)) ↦[(TileK20.outM (crd c s) n).view.set]{fullShare} f : sProp 𝕄))) g
  · rw [if_neg h, if_neg h]; exact BI.Entails.refl _

/-- The tasks' pieces of result q, each holding row q of f, are result q whole holding that row. -/
theorem o_pieces_row (d : Dev nD) (f : Buf (Elt F) (ℓx d)) :
    (bigSep Finset.univ fun c : Fin 2 => bigSep Finset.univ fun s : Fin 16 => bigSep (Finset.range 18) (TileK20.oQ d (crd c s) f))
      = (ℓo d ↦{fullShare} (Cert.Spec.row qK f : Buf (Elt F) (ℓo d)) : sProp 𝕄) := by
  rw [o_pieces d (Cert.Spec.row qK f : Buf (Elt F) (ℓo d))]
  rfl

omit [FloatOps F] in
/-- A separating conjunction over the call's grid of vector subcores, or of SparseCores, is one over sixteen, or two. -/
theorem bigSep_castSub (Φ : Fin 16 → sProp 𝕄) :
    (bigSep Finset.univ fun i : Fin ((K (F := F)).nSub qK) => Φ (i.cast (LaunchKI.nSub_eq qK))) = bigSep Finset.univ Φ :=
  bigSep_congr fun _ _ => congrArg Φ (Fin.ext rfl)
omit [FloatOps F] in
theorem bigSep_castCore (Φ : Fin 2 → sProp 𝕄) :
    (bigSep Finset.univ fun c : Fin ((K (F := F)).nCore qK) => Φ (c.cast (LaunchKI.nCore_eq qK))) = bigSep Finset.univ Φ :=
  bigSep_congr fun _ _ => congrArg Φ (Fin.ext rfl)

theorem goQ_eq (d : Dev nD) (c : Fin 2) (s : Fin 16) : LaunchKI.goQ m qK d c s = TileK20.goRes d (crd c s) (xt m d) := rfl
theorem tdQ_eq (d : Dev nD) (c : Fin 2) (s : Fin 16) : LaunchKI.tdQ m qK d c s = TileK20.tdRes d (crd c s) (xt m d) := rfl

/-- What the call takes for the two SparseCores: every task's pieces. -/
theorem st_eq (d : Dev nD) :
    (bigSep Finset.univ fun c : Fin ((K (F := F)).nCore qK) => (P m).st qK d c)
      = iprop((bigSep Finset.univ fun c : Fin 2 => bigSep Finset.univ fun s : Fin 16 => bigSep (Finset.range 18) (TileK20.xP d (crd c s) (xt m d)))
          ∗ (bigSep Finset.univ fun c : Fin 2 => bigSep Finset.univ fun s : Fin 16 => bigSep (Finset.range 18) (TileK20.oP (F := F) d (crd c s)))) := by
  have h1 : (bigSep Finset.univ fun c : Fin ((K (F := F)).nCore qK) => (P m).st qK d c)
      = bigSep Finset.univ fun c : Fin ((K (F := F)).nCore qK) =>
          (fun c' : Fin 2 => bigSep (Finset.univ : Finset (Fin 16)) fun s => LaunchKI.goQ m qK d c' s) (c.cast (LaunchKI.nCore_eq qK)) :=
    bigSep_congr fun c _ => bigSep_castSub (fun s => LaunchKI.goQ m qK d (c.cast (LaunchKI.nCore_eq qK)) s)
  rw [h1, bigSep_castCore (fun c' : Fin 2 => bigSep (Finset.univ : Finset (Fin 16)) fun s => LaunchKI.goQ m qK d c' s), ← bigSep_sep']
  refine bigSep_congr fun c _ => ?_
  rw [← bigSep_sep']
  refine bigSep_congr fun s _ => ?_
  rw [goQ_eq]; rfl

/-- What it hands back. -/
theorem dn_eq (d : Dev nD) :
    (bigSep Finset.univ fun c : Fin ((K (F := F)).nCore qK) => (P m).dn qK d c)
      = iprop((bigSep Finset.univ fun c : Fin 2 => bigSep Finset.univ fun s : Fin 16 => bigSep (Finset.range 18) (TileK20.xP d (crd c s) (xt m d)))
          ∗ (bigSep Finset.univ fun c : Fin 2 => bigSep Finset.univ fun s : Fin 16 => bigSep (Finset.range 18) (TileK20.oQ d (crd c s) (xt m d)))) := by
  have h1 : (bigSep Finset.univ fun c : Fin ((K (F := F)).nCore qK) => (P m).dn qK d c)
      = bigSep Finset.univ fun c : Fin ((K (F := F)).nCore qK) =>
          (fun c' : Fin 2 => bigSep (Finset.univ : Finset (Fin 16)) fun s => LaunchKI.tdQ m qK d c' s) (c.cast (LaunchKI.nCore_eq qK)) :=
    bigSep_congr fun c _ => bigSep_castSub (fun s => LaunchKI.tdQ m qK d (c.cast (LaunchKI.nCore_eq qK)) s)
  rw [h1, bigSep_castCore (fun c' : Fin 2 => bigSep (Finset.univ : Finset (Fin 16)) fun s => LaunchKI.tdQ m qK d c' s), ← bigSep_sep']
  refine bigSep_congr fun c _ => ?_
  rw [← bigSep_sep']
  refine bigSep_congr fun s _ => ?_
  rw [tdQ_eq]; rfl

omit [FloatOps F] in
theorem pair_sub : ({vx', vo'} : Finset (DevRef τ sig)) ⊆ tcRefs τ sig :=
  Finset.insert_subset (devRef_mem_tcRefs _) (Finset.singleton_subset_iff.mpr (devRef_mem_tcRefs _))

omit [FloatOps F] in
theorem held_pair (d : Dev nD) (V : Valuation τ sig (Elt F)) :
    (held (SparseCore.T d) ({vx', vo'} : Finset (DevRef τ sig)) V : sProp 𝕄) = iprop((ℓx d ↦{fullShare} V vx') ∗ (ℓo d ↦{fullShare} V vo')) := by
  unfold held; rw [SparseCore.bigSep_insert' (by decide), bigSep_singleton]

/-- What the call does to the TensorCore's buffers, as an operation on valuations: result q takes row q of the transpose. -/
abbrev opC (d : Dev nD) : HloOp τ sig (Elt F) := StableHlo.nullary main_v21 (Cert.Spec.row qK (xt m d))

/-- The call, from the TensorCore's buffers held at a valuation V whose transposed argument is the transpose: it
    leaves them at V but for result q, which holds row q of the transpose. -/
theorem step (κ : GSem nD τ sig → ℕ) (d : Dev nD) (V : Valuation τ sig (Elt F)) (hV : V vx' = xt m d) {Φ : PUnit → sProp 𝕄} :
    iprop((K (F := F)).ctx EH (P m) κ ∗ (K (F := F)).tcSt EH d qK.val ∗ held (SparseCore.T d) (tcRefs τ sig) V
        ∗ (((K (F := F)).tcSt EH d (qK.val + 1) ∗ held (SparseCore.T d) (tcRefs τ sig) ((opC m d).result V)) -∗ Φ ⟨⟩))
      ⊢ wp frame (wpE ((K (F := F)).defs (D (F := F))) 𝒱 (SparseCore.T d) none) Set.univ ((K (F := F)).run d qK) Φ := by
  rw [held_sub_split (SparseCore.T d) pair_sub V, held_pair, hV]
  iintro ⟨#Hctx, Hst, ⟨⟨Hx, Ho⟩, Hrest⟩, Hk⟩
  ihave Hx' := (pointsTo_split_subset (q := fullShare) (f := xt m d) (Finset.subset_univ (Pieces.rowSet qK.val : Finset (Idx (ℓx d))))).1 $$ Hx
  icases Hx' with ⟨Hrow, Hxrest⟩
  iapply ((K (F := F)).wp_run (D (F := F)) 𝒱 (EH := EH) (P := P m) κ d qK) $$ [Hst Hrow Ho Hk Hxrest Hrest]
  isplitr; · iexact Hctx
  isplitl [Hst]; · iexact Hst
  isplitl [Hrow Ho]
  · rw [st_eq]
    isplitl [Hrow]
    · iapply (Entails.of_eq (x_pieces d (xt m d))); iexact Hrow
    · iapply (o_pieces_ex d (V vo')); iexact Ho
  iintro ⟨Hst, Hdn⟩
  ihave Hdn' := (Entails.of_eq (dn_eq m d)) $$ Hdn
  icases Hdn' with ⟨Hrow, Ho⟩
  ihave Hrow' := (Entails.of_eq (x_pieces d (xt m d)).symm) $$ Hrow
  ihave Ho' := (Entails.of_eq (o_pieces_row d (xt m d))) $$ Ho
  ihave Hx := (pointsTo_split_subset (q := fullShare) (f := xt m d) (Finset.subset_univ (Pieces.rowSet qK.val : Finset (Idx (ℓx d))))).2 $$ [Hrow' Hxrest]
  · isplitl [Hrow']; · iexact Hrow'
    iexact Hxrest
  iapply Hk
  isplitl [Hst]; · iexact Hst
  rw [held_sub_split (SparseCore.T d) pair_sub ((opC m d).result V), held_pair,
    StableHlo.nullary_result_ne _ _ _ V (show (main_v0 : Ref sig .tc) ≠ main_v21 by decide), StableHlo.nullary_result, hV,
    held_congr (SparseCore.T d) (V := (opC m d).result V) (V' := V)
      (fun b hb => (opC m d).result_of_not_mem V (fun hw => (Finset.mem_sdiff.mp hb).2
        (Finset.mem_insert_of_mem (Finset.mem_singleton.mpr (Finset.mem_singleton.mp hw)))))]
  isplitl [Hx Ho']
  · isplitl [Hx]; · iexact Hx
    iexact Ho'
  · iexact Hrest

end Cert.Proof.CallK20

end
-- ==== Proof.CallPieces21.lean ====
/-
  The pieces of one call: row q of the transposed argument, held at some contents, is the 32 vector subcores' pieces of
  it; result q, held whole at some contents, is their pieces of it.
-/
import proofs.«206869_g37898791420194_cont_8to1_b_558_20_alg».proof.Proof.TileK21Defs
import proofs.«206869_g37898791420194_cont_8to1_b_558_20_alg».proof.Proof.LaunchPieces

noncomputable section

namespace Cert.Proof.CallK21

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic
open Cert.Proof.Pieces (crd)

variable {F : FTy → Type}

abbrev UU : Type := URounds (GSem nD τ sig) ℕ × Counters
local notation "𝕄" => MT nD τ sig (HIx 22) (Elt F) ℕ UU ℕ

/-- The call's number. -/
abbrev qK : Fin 22 := 21
theorem hq : qK.val < 22 := qK.isLt

abbrev vx' : DevRef τ sig := Proc.devRef .tc (main_v0 : Ref sig .tc)
abbrev vo' : DevRef τ sig := Proc.devRef .tc (main_v22 : Ref sig .tc)
abbrev ℓx (d : Dev nD) : Loc nD τ sig := (SparseCore.T d).loc main_v0
abbrev ℓo (d : Dev nD) : Loc nD τ sig := (SparseCore.T d).loc main_v22

variable [FloatOps F]

/-- Row q of the transposed argument, held at contents f, is the tasks' pieces of it. -/
theorem x_pieces (d : Dev nD) (f : Buf (Elt F) (ℓx d)) :
    (ℓx d ↦[(Pieces.rowSet qK.val : Finset (Idx (ℓx d)))]{fullShare} f : sProp 𝕄)
      = bigSep Finset.univ fun c : Fin 2 => bigSep Finset.univ fun s : Fin 16 => bigSep (Finset.range 18) (TileK21.xP d (crd c s) f) := by
  rw [← Pieces.in_cover qK.val hq, pointsTo_biUnion _ _ (Pieces.in_disj qK.val hq), Pieces.bigSep_tris]
  refine bigSep_congr fun c _ => bigSep_congr fun s _ => bigSep_congr fun n _ => ?_
  unfold TileK21.xP
  by_cases h : TileK21.valid (crd c s) n
  · rw [if_pos h, if_pos (show Pieces.pnum (c, s, n) < 500 from (TileK21.valid_iff _ _).mp h)]
    show _ = ((TileK21.inM (crd c s) n).view.loc (TileK21.thr d (crd c s)) ↦[(TileK21.inM (crd c s) n).view.set]{fullShare} f)
    rw [show (TileK21.inM (crd c s) n).view.set = Pieces.inSet qK.val hq (c, s, n) from View.set_slice_whole _ _]
  · rw [if_neg h, if_neg (show ¬ Pieces.pnum (c, s, n) < 500 from fun h' => h ((TileK21.valid_iff _ _).mpr h'))]
    rfl

/-- Result q, held whole at contents g, is the tasks' pieces of it at g. -/
theorem o_pieces (d : Dev nD) (g : Buf (Elt F) (ℓo d)) :
    (ℓo d ↦{fullShare} g : sProp 𝕄)
      = bigSep Finset.univ fun c : Fin 2 => bigSep Finset.univ fun s : Fin 16 => bigSep (Finset.range 18) fun n =>
          if TileK21.valid (crd c s) n then
            ((TileK21.outM (crd c s) n).view.loc (TileK21.thr d (crd c s)) ↦[(TileK21.outM (crd c s) n).view.set]{fullShare} g : sProp 𝕄)
          else iprop(emp) := by
  show (ℓo d ↦[(Finset.univ : Finset (Idx (ℓo d)))]{fullShare} g : sProp 𝕄) = _
  rw [← Pieces.out_cover, pointsTo_biUnion _ _ Pieces.out_disj, Pieces.bigSep_tris]
  refine bigSep_congr fun c _ => bigSep_congr fun s _ => bigSep_congr fun n _ => ?_
  by_cases h : TileK21.valid (crd c s) n
  · rw [if_pos h, if_pos (show Pieces.pnum (c, s, n) < 500 from (TileK21.valid_iff _ _).mp h)]
    rw [show (TileK21.outM (crd c s) n).view.set = Pieces.outSet (c, s, n) from View.set_slice_whole _ _]
  · rw [if_neg h, if_neg (show ¬ Pieces.pnum (c, s, n) < 500 from fun h' => h ((TileK21.valid_iff _ _).mpr h'))]
    rfl

end Cert.Proof.CallK21

end
-- ==== Proof.LaunchStep21.lean ====
/-
  One call of a copy kernel, run from the TensorCore: from the TensorCore's buffers held at a valuation whose transposed
  argument is the transpose, the call leaves them at the same valuation but for result q, which holds row q.
-/
import proofs.«206869_g37898791420194_cont_8to1_b_558_20_alg».proof.Proof.LaunchP
import proofs.«206869_g37898791420194_cont_8to1_b_558_20_alg».proof.Proof.CallPieces21

noncomputable section

namespace Cert.Proof.CallK21

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic
open Idealize.ShloMosaic.StableHlo (tcRefs devRef_mem_tcRefs held_sub_split held_congr)
open Cert.Proof.Pieces (crd)
open Cert.Proof.LaunchKI (K D 𝒱 𝒱₀ v₀ EH P xt)

variable {F : FTy → Type}

local notation "𝕄" => MT nD τ sig (HIx 22) (Elt F) ℕ UU ℕ

variable (m : (ℓ : Loc nD τ sig) → Buf (Elt F) ℓ)
variable [FloatOps F]

/-- Result q held whole at some contents gives every task its pieces of it, each at some contents. -/
theorem o_pieces_ex (d : Dev nD) (g : Buf (Elt F) (ℓo d)) :
    (ℓo d ↦{fullShare} g : sProp 𝕄)
      ⊢ bigSep Finset.univ fun c : Fin 2 => bigSep Finset.univ fun s : Fin 16 => bigSep (Finset.range 18) (TileK21.oP (F := F) d (crd c s)) := by
  rw [o_pieces d g]
  refine bigSep_mono fun c _ => bigSep_mono fun s _ => bigSep_mono fun n _ => ?_
  unfold TileK21.oP
  by_cases h : TileK21.valid (crd c s) n
  · rw [if_pos h, if_pos h]
    exact exists_intro (Φ := fun f => (((TileK21.outM (crd c s) n).view.loc (TileK21.thr d (crd c s)) ↦[(TileK21.outM (crd c s) n).view.set]{fullShare} f : sProp 𝕄))) g
  · rw [if_neg h, if_neg h]; exact BI.Entails.refl _

/-- The tasks' pieces of result q, each holding row q of f, are result q whole holding that row. -/
theorem o_pieces_row (d : Dev nD) (f : Buf (Elt F) (ℓx d)) :
    (bigSep Finset.univ fun c : Fin 2 => bigSep Finset.univ fun s : Fin 16 => bigSep (Finset.range 18) (TileK21.oQ d (crd c s) f))
      = (ℓo d ↦{fullShare} (Cert.Spec.row qK f : Buf (Elt F) (ℓo d)) : sProp 𝕄) := by
  rw [o_pieces d (Cert.Spec.row qK f : Buf (Elt F) (ℓo d))]
  rfl

omit [FloatOps F] in
/-- A separating conjunction over the call's grid of vector subcores, or of SparseCores, is one over sixteen, or two. -/
theorem bigSep_castSub (Φ : Fin 16 → sProp 𝕄) :
    (bigSep Finset.univ fun i : Fin ((K (F := F)).nSub qK) => Φ (i.cast (LaunchKI.nSub_eq qK))) = bigSep Finset.univ Φ :=
  bigSep_congr fun _ _ => congrArg Φ (Fin.ext rfl)
omit [FloatOps F] in
theorem bigSep_castCore (Φ : Fin 2 → sProp 𝕄) :
    (bigSep Finset.univ fun c : Fin ((K (F := F)).nCore qK) => Φ (c.cast (LaunchKI.nCore_eq qK))) = bigSep Finset.univ Φ :=
  bigSep_congr fun _ _ => congrArg Φ (Fin.ext rfl)

theorem goQ_eq (d : Dev nD) (c : Fin 2) (s : Fin 16) : LaunchKI.goQ m qK d c s = TileK21.goRes d (crd c s) (xt m d) := rfl
theorem tdQ_eq (d : Dev nD) (c : Fin 2) (s : Fin 16) : LaunchKI.tdQ m qK d c s = TileK21.tdRes d (crd c s) (xt m d) := rfl

/-- What the call takes for the two SparseCores: every task's pieces. -/
theorem st_eq (d : Dev nD) :
    (bigSep Finset.univ fun c : Fin ((K (F := F)).nCore qK) => (P m).st qK d c)
      = iprop((bigSep Finset.univ fun c : Fin 2 => bigSep Finset.univ fun s : Fin 16 => bigSep (Finset.range 18) (TileK21.xP d (crd c s) (xt m d)))
          ∗ (bigSep Finset.univ fun c : Fin 2 => bigSep Finset.univ fun s : Fin 16 => bigSep (Finset.range 18) (TileK21.oP (F := F) d (crd c s)))) := by
  have h1 : (bigSep Finset.univ fun c : Fin ((K (F := F)).nCore qK) => (P m).st qK d c)
      = bigSep Finset.univ fun c : Fin ((K (F := F)).nCore qK) =>
          (fun c' : Fin 2 => bigSep (Finset.univ : Finset (Fin 16)) fun s => LaunchKI.goQ m qK d c' s) (c.cast (LaunchKI.nCore_eq qK)) :=
    bigSep_congr fun c _ => bigSep_castSub (fun s => LaunchKI.goQ m qK d (c.cast (LaunchKI.nCore_eq qK)) s)
  rw [h1, bigSep_castCore (fun c' : Fin 2 => bigSep (Finset.univ : Finset (Fin 16)) fun s => LaunchKI.goQ m qK d c' s), ← bigSep_sep']
  refine bigSep_congr fun c _ => ?_
  rw [← bigSep_sep']
  refine bigSep_congr fun s _ => ?_
  rw [goQ_eq]; rfl

/-- What it hands back. -/
theorem dn_eq (d : Dev nD) :
    (bigSep Finset.univ fun c : Fin ((K (F := F)).nCore qK) => (P m).dn qK d c)
      = iprop((bigSep Finset.univ fun c : Fin 2 => bigSep Finset.univ fun s : Fin 16 => bigSep (Finset.range 18) (TileK21.xP d (crd c s) (xt m d)))
          ∗ (bigSep Finset.univ fun c : Fin 2 => bigSep Finset.univ fun s : Fin 16 => bigSep (Finset.range 18) (TileK21.oQ d (crd c s) (xt m d)))) := by
  have h1 : (bigSep Finset.univ fun c : Fin ((K (F := F)).nCore qK) => (P m).dn qK d c)
      = bigSep Finset.univ fun c : Fin ((K (F := F)).nCore qK) =>
          (fun c' : Fin 2 => bigSep (Finset.univ : Finset (Fin 16)) fun s => LaunchKI.tdQ m qK d c' s) (c.cast (LaunchKI.nCore_eq qK)) :=
    bigSep_congr fun c _ => bigSep_castSub (fun s => LaunchKI.tdQ m qK d (c.cast (LaunchKI.nCore_eq qK)) s)
  rw [h1, bigSep_castCore (fun c' : Fin 2 => bigSep (Finset.univ : Finset (Fin 16)) fun s => LaunchKI.tdQ m qK d c' s), ← bigSep_sep']
  refine bigSep_congr fun c _ => ?_
  rw [← bigSep_sep']
  refine bigSep_congr fun s _ => ?_
  rw [tdQ_eq]; rfl

omit [FloatOps F] in
theorem pair_sub : ({vx', vo'} : Finset (DevRef τ sig)) ⊆ tcRefs τ sig :=
  Finset.insert_subset (devRef_mem_tcRefs _) (Finset.singleton_subset_iff.mpr (devRef_mem_tcRefs _))

omit [FloatOps F] in
theorem held_pair (d : Dev nD) (V : Valuation τ sig (Elt F)) :
    (held (SparseCore.T d) ({vx', vo'} : Finset (DevRef τ sig)) V : sProp 𝕄) = iprop((ℓx d ↦{fullShare} V vx') ∗ (ℓo d ↦{fullShare} V vo')) := by
  unfold held; rw [SparseCore.bigSep_insert' (by decide), bigSep_singleton]

/-- What the call does to the TensorCore's buffers, as an operation on valuations: result q takes row q of the transpose. -/
abbrev opC (d : Dev nD) : HloOp τ sig (Elt F) := StableHlo.nullary main_v22 (Cert.Spec.row qK (xt m d))

/-- The call, from the TensorCore's buffers held at a valuation V whose transposed argument is the transpose: it
    leaves them at V but for result q, which holds row q of the transpose. -/
theorem step (κ : GSem nD τ sig → ℕ) (d : Dev nD) (V : Valuation τ sig (Elt F)) (hV : V vx' = xt m d) {Φ : PUnit → sProp 𝕄} :
    iprop((K (F := F)).ctx EH (P m) κ ∗ (K (F := F)).tcSt EH d qK.val ∗ held (SparseCore.T d) (tcRefs τ sig) V
        ∗ (((K (F := F)).tcSt EH d (qK.val + 1) ∗ held (SparseCore.T d) (tcRefs τ sig) ((opC m d).result V)) -∗ Φ ⟨⟩))
      ⊢ wp frame (wpE ((K (F := F)).defs (D (F := F))) 𝒱 (SparseCore.T d) none) Set.univ ((K (F := F)).run d qK) Φ := by
  rw [held_sub_split (SparseCore.T d) pair_sub V, held_pair, hV]
  iintro ⟨#Hctx, Hst, ⟨⟨Hx, Ho⟩, Hrest⟩, Hk⟩
  ihave Hx' := (pointsTo_split_subset (q := fullShare) (f := xt m d) (Finset.subset_univ (Pieces.rowSet qK.val : Finset (Idx (ℓx d))))).1 $$ Hx
  icases Hx' with ⟨Hrow, Hxrest⟩
  iapply ((K (F := F)).wp_run (D (F := F)) 𝒱 (EH := EH) (P := P m) κ d qK) $$ [Hst Hrow Ho Hk Hxrest Hrest]
  isplitr; · iexact Hctx
  isplitl [Hst]; · iexact Hst
  isplitl [Hrow Ho]
  · rw [st_eq]
    isplitl [Hrow]
    · iapply (Entails.of_eq (x_pieces d (xt m d))); iexact Hrow
    · iapply (o_pieces_ex d (V vo')); iexact Ho
  iintro ⟨Hst, Hdn⟩
  ihave Hdn' := (Entails.of_eq (dn_eq m d)) $$ Hdn
  icases Hdn' with ⟨Hrow, Ho⟩
  ihave Hrow' := (Entails.of_eq (x_pieces d (xt m d)).symm) $$ Hrow
  ihave Ho' := (Entails.of_eq (o_pieces_row d (xt m d))) $$ Ho
  ihave Hx := (pointsTo_split_subset (q := fullShare) (f := xt m d) (Finset.subset_univ (Pieces.rowSet qK.val : Finset (Idx (ℓx d))))).2 $$ [Hrow' Hxrest]
  · isplitl [Hrow']; · iexact Hrow'
    iexact Hxrest
  iapply Hk
  isplitl [Hst]; · iexact Hst
  rw [held_sub_split (SparseCore.T d) pair_sub ((opC m d).result V), held_pair,
    StableHlo.nullary_result_ne _ _ _ V (show (main_v0 : Ref sig .tc) ≠ main_v22 by decide), StableHlo.nullary_result, hV,
    held_congr (SparseCore.T d) (V := (opC m d).result V) (V' := V)
      (fun b hb => (opC m d).result_of_not_mem V (fun hw => (Finset.mem_sdiff.mp hb).2
        (Finset.mem_insert_of_mem (Finset.mem_singleton.mpr (Finset.mem_singleton.mp hw)))))]
  isplitl [Hx Ho']
  · isplitl [Hx]; · iexact Hx
    iexact Ho'
  · iexact Hrest

end Cert.Proof.CallK21

end
-- ==== Proof.LaunchKI.lean ====
/-
  The launch of the 22 copy kernels, last part: @main on the TensorCore — the transpose, the 22 calls, the 22
  reshapes — over the TensorCore's buffers held at a valuation; what the final memory says; the run.
-/
import proofs.«206869_g37898791420194_cont_8to1_b_558_20_alg».proof.Proof.LaunchP
import proofs.«206869_g37898791420194_cont_8to1_b_558_20_alg».proof.Proof.LaunchObl
import proofs.«206869_g37898791420194_cont_8to1_b_558_20_alg».proof.Proof.LaunchValue
import proofs.«206869_g37898791420194_cont_8to1_b_558_20_alg».proof.Proof.LaunchStep0
import proofs.«206869_g37898791420194_cont_8to1_b_558_20_alg».proof.Proof.LaunchStep1
import proofs.«206869_g37898791420194_cont_8to1_b_558_20_alg».proof.Proof.LaunchStep2
import proofs.«206869_g37898791420194_cont_8to1_b_558_20_alg».proof.Proof.LaunchStep3
import proofs.«206869_g37898791420194_cont_8to1_b_558_20_alg».proof.Proof.LaunchStep4
import proofs.«206869_g37898791420194_cont_8to1_b_558_20_alg».proof.Proof.LaunchStep5
import proofs.«206869_g37898791420194_cont_8to1_b_558_20_alg».proof.Proof.LaunchStep6
import proofs.«206869_g37898791420194_cont_8to1_b_558_20_alg».proof.Proof.LaunchStep7
import proofs.«206869_g37898791420194_cont_8to1_b_558_20_alg».proof.Proof.LaunchStep8
import proofs.«206869_g37898791420194_cont_8to1_b_558_20_alg».proof.Proof.LaunchStep9
import proofs.«206869_g37898791420194_cont_8to1_b_558_20_alg».proof.Proof.LaunchStep10
import proofs.«206869_g37898791420194_cont_8to1_b_558_20_alg».proof.Proof.LaunchStep11
import proofs.«206869_g37898791420194_cont_8to1_b_558_20_alg».proof.Proof.LaunchStep12
import proofs.«206869_g37898791420194_cont_8to1_b_558_20_alg».proof.Proof.LaunchStep13
import proofs.«206869_g37898791420194_cont_8to1_b_558_20_alg».proof.Proof.LaunchStep14
import proofs.«206869_g37898791420194_cont_8to1_b_558_20_alg».proof.Proof.LaunchStep15
import proofs.«206869_g37898791420194_cont_8to1_b_558_20_alg».proof.Proof.LaunchStep16
import proofs.«206869_g37898791420194_cont_8to1_b_558_20_alg».proof.Proof.LaunchStep17
import proofs.«206869_g37898791420194_cont_8to1_b_558_20_alg».proof.Proof.LaunchStep18
import proofs.«206869_g37898791420194_cont_8to1_b_558_20_alg».proof.Proof.LaunchStep19
import proofs.«206869_g37898791420194_cont_8to1_b_558_20_alg».proof.Proof.LaunchStep20
import proofs.«206869_g37898791420194_cont_8to1_b_558_20_alg».proof.Proof.LaunchStep21

noncomputable section

namespace Cert.Proof.LaunchKI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic
open Idealize.ShloMosaic.StableHlo (tcRefs devRef_mem_tcRefs)

variable {F : FTy → Type}

local notation "𝕄" => MT nD τ sig (HIx 22) (Elt F) ℕ UU ℕ

variable (m : (ℓ : Loc nD τ sig) → Buf (Elt F) ℓ) (ρ : Dev nD → PrngReg)
variable [FloatOps F]

/-! ## The TensorCore's buffers, as valuations along @main -/

abbrev opT : HloOp τ sig (Elt F) :=
  StableHlo.unary main_arg0 main_v0 ((transpose S22x1600000 [1, 0] · transposes_S1600000x22_S22x1600000_1_0) : (⟨S1600000x22, .f32⟩ : BufTy).Contents (Elt F) → (⟨S22x1600000, .f32⟩ : BufTy).Contents (Elt F))
abbrev opR0 : HloOp τ sig (Elt F) := StableHlo.reshape main_v1 main_v23 rfl shapeCasts_S1600000_S1600000x1
abbrev opR1 : HloOp τ sig (Elt F) := StableHlo.reshape main_v2 main_v24 rfl shapeCasts_S1600000_S1600000x1
abbrev opR2 : HloOp τ sig (Elt F) := StableHlo.reshape main_v3 main_v25 rfl shapeCasts_S1600000_S1600000x1
abbrev opR3 : HloOp τ sig (Elt F) := StableHlo.reshape main_v4 main_v26 rfl shapeCasts_S1600000_S1600000x1
abbrev opR4 : HloOp τ sig (Elt F) := StableHlo.reshape main_v5 main_v27 rfl shapeCasts_S1600000_S1600000x1
abbrev opR5 : HloOp τ sig (Elt F) := StableHlo.reshape main_v6 main_v28 rfl shapeCasts_S1600000_S1600000x1
abbrev opR6 : HloOp τ sig (Elt F) := StableHlo.reshape main_v7 main_v29 rfl shapeCasts_S1600000_S1600000x1
abbrev opR7 : HloOp τ sig (Elt F) := StableHlo.reshape main_v8 main_v30 rfl shapeCasts_S1600000_S1600000x1
abbrev opR8 : HloOp τ sig (Elt F) := StableHlo.reshape main_v9 main_v31 rfl shapeCasts_S1600000_S1600000x1
abbrev opR9 : HloOp τ sig (Elt F) := StableHlo.reshape main_v10 main_v32 rfl shapeCasts_S1600000_S1600000x1
abbrev opR10 : HloOp τ sig (Elt F) := StableHlo.reshape main_v11 main_v33 rfl shapeCasts_S1600000_S1600000x1
abbrev opR11 : HloOp τ sig (Elt F) := StableHlo.reshape main_v12 main_v34 rfl shapeCasts_S1600000_S1600000x1
abbrev opR12 : HloOp τ sig (Elt F) := StableHlo.reshape main_v13 main_v35 rfl shapeCasts_S1600000_S1600000x1
abbrev opR13 : HloOp τ sig (Elt F) := StableHlo.reshape main_v14 main_v36 rfl shapeCasts_S1600000_S1600000x1
abbrev opR14 : HloOp τ sig (Elt F) := StableHlo.reshape main_v15 main_v37 rfl shapeCasts_S1600000_S1600000x1
abbrev opR15 : HloOp τ sig (Elt F) := StableHlo.reshape main_v16 main_v38 rfl shapeCasts_S1600000_S1600000x1
abbrev opR16 : HloOp τ sig (Elt F) := StableHlo.reshape main_v17 main_v39 rfl shapeCasts_S1600000_S1600000x1
abbrev opR17 : HloOp τ sig (Elt F) := StableHlo.reshape main_v18 main_v40 rfl shapeCasts_S1600000_S1600000x1
abbrev opR18 : HloOp τ sig (Elt F) := StableHlo.reshape main_v19 main_v41 rfl shapeCasts_S1600000_S1600000x1
abbrev opR19 : HloOp τ sig (Elt F) := StableHlo.reshape main_v20 main_v42 rfl shapeCasts_S1600000_S1600000x1
abbrev opR20 : HloOp τ sig (Elt F) := StableHlo.reshape main_v21 main_v43 rfl shapeCasts_S1600000_S1600000x1
abbrev opR21 : HloOp τ sig (Elt F) := StableHlo.reshape main_v22 main_v44 rfl shapeCasts_S1600000_S1600000x1

/-- The launch contents; after the transpose; after call q; after reshape q. -/
def V0 (d : Dev nD) : Valuation τ sig (Elt F) := fun b => m (d, b)
def Vt (d : Dev nD) : Valuation τ sig (Elt F) := (opT (F := F)).result (V0 m d)
def Vc0 (d : Dev nD) : Valuation τ sig (Elt F) := (CallK0.opC m d).result (Vt m d)
def Vc1 (d : Dev nD) : Valuation τ sig (Elt F) := (CallK1.opC m d).result (Vc0 m d)
def Vc2 (d : Dev nD) : Valuation τ sig (Elt F) := (CallK2.opC m d).result (Vc1 m d)
def Vc3 (d : Dev nD) : Valuation τ sig (Elt F) := (CallK3.opC m d).result (Vc2 m d)
def Vc4 (d : Dev nD) : Valuation τ sig (Elt F) := (CallK4.opC m d).result (Vc3 m d)
def Vc5 (d : Dev nD) : Valuation τ sig (Elt F) := (CallK5.opC m d).result (Vc4 m d)
def Vc6 (d : Dev nD) : Valuation τ sig (Elt F) := (CallK6.opC m d).result (Vc5 m d)
def Vc7 (d : Dev nD) : Valuation τ sig (Elt F) := (CallK7.opC m d).result (Vc6 m d)
def Vc8 (d : Dev nD) : Valuation τ sig (Elt F) := (CallK8.opC m d).result (Vc7 m d)
def Vc9 (d : Dev nD) : Valuation τ sig (Elt F) := (CallK9.opC m d).result (Vc8 m d)
def Vc10 (d : Dev nD) : Valuation τ sig (Elt F) := (CallK10.opC m d).result (Vc9 m d)
def Vc11 (d : Dev nD) : Valuation τ sig (Elt F) := (CallK11.opC m d).result (Vc10 m d)
def Vc12 (d : Dev nD) : Valuation τ sig (Elt F) := (CallK12.opC m d).result (Vc11 m d)
def Vc13 (d : Dev nD) : Valuation τ sig (Elt F) := (CallK13.opC m d).result (Vc12 m d)
def Vc14 (d : Dev nD) : Valuation τ sig (Elt F) := (CallK14.opC m d).result (Vc13 m d)
def Vc15 (d : Dev nD) : Valuation τ sig (Elt F) := (CallK15.opC m d).result (Vc14 m d)
def Vc16 (d : Dev nD) : Valuation τ sig (Elt F) := (CallK16.opC m d).result (Vc15 m d)
def Vc17 (d : Dev nD) : Valuation τ sig (Elt F) := (CallK17.opC m d).result (Vc16 m d)
def Vc18 (d : Dev nD) : Valuation τ sig (Elt F) := (CallK18.opC m d).result (Vc17 m d)
def Vc19 (d : Dev nD) : Valuation τ sig (Elt F) := (CallK19.opC m d).result (Vc18 m d)
def Vc20 (d : Dev nD) : Valuation τ sig (Elt F) := (CallK20.opC m d).result (Vc19 m d)
def Vc21 (d : Dev nD) : Valuation τ sig (Elt F) := (CallK21.opC m d).result (Vc20 m d)
def Vr0 (d : Dev nD) : Valuation τ sig (Elt F) := (opR0 (F := F)).result (Vc21 m d)
def Vr1 (d : Dev nD) : Valuation τ sig (Elt F) := (opR1 (F := F)).result (Vr0 m d)
def Vr2 (d : Dev nD) : Valuation τ sig (Elt F) := (opR2 (F := F)).result (Vr1 m d)
def Vr3 (d : Dev nD) : Valuation τ sig (Elt F) := (opR3 (F := F)).result (Vr2 m d)
def Vr4 (d : Dev nD) : Valuation τ sig (Elt F) := (opR4 (F := F)).result (Vr3 m d)
def Vr5 (d : Dev nD) : Valuation τ sig (Elt F) := (opR5 (F := F)).result (Vr4 m d)
def Vr6 (d : Dev nD) : Valuation τ sig (Elt F) := (opR6 (F := F)).result (Vr5 m d)
def Vr7 (d : Dev nD) : Valuation τ sig (Elt F) := (opR7 (F := F)).result (Vr6 m d)
def Vr8 (d : Dev nD) : Valuation τ sig (Elt F) := (opR8 (F := F)).result (Vr7 m d)
def Vr9 (d : Dev nD) : Valuation τ sig (Elt F) := (opR9 (F := F)).result (Vr8 m d)
def Vr10 (d : Dev nD) : Valuation τ sig (Elt F) := (opR10 (F := F)).result (Vr9 m d)
def Vr11 (d : Dev nD) : Valuation τ sig (Elt F) := (opR11 (F := F)).result (Vr10 m d)
def Vr12 (d : Dev nD) : Valuation τ sig (Elt F) := (opR12 (F := F)).result (Vr11 m d)
def Vr13 (d : Dev nD) : Valuation τ sig (Elt F) := (opR13 (F := F)).result (Vr12 m d)
def Vr14 (d : Dev nD) : Valuation τ sig (Elt F) := (opR14 (F := F)).result (Vr13 m d)
def Vr15 (d : Dev nD) : Valuation τ sig (Elt F) := (opR15 (F := F)).result (Vr14 m d)
def Vr16 (d : Dev nD) : Valuation τ sig (Elt F) := (opR16 (F := F)).result (Vr15 m d)
def Vr17 (d : Dev nD) : Valuation τ sig (Elt F) := (opR17 (F := F)).result (Vr16 m d)
def Vr18 (d : Dev nD) : Valuation τ sig (Elt F) := (opR18 (F := F)).result (Vr17 m d)
def Vr19 (d : Dev nD) : Valuation τ sig (Elt F) := (opR19 (F := F)).result (Vr18 m d)
def Vr20 (d : Dev nD) : Valuation τ sig (Elt F) := (opR20 (F := F)).result (Vr19 m d)
def Vr21 (d : Dev nD) : Valuation τ sig (Elt F) := (opR21 (F := F)).result (Vr20 m d)

/-- The transposed argument's buffer holds the transpose from the first line on: no call writes it. -/
theorem Vt_vx (d : Dev nD) : Vt m d CallK0.vx' = xt m d := StableHlo.unary_result _ _ _ _ _ _
theorem Vc0_vx (d : Dev nD) : Vc0 m d CallK0.vx' = xt m d :=
  (StableHlo.nullary_result_ne _ _ _ _ (show (main_v0 : Ref sig .tc) ≠ main_v1 by decide)).trans (Vt_vx m d)
theorem Vc1_vx (d : Dev nD) : Vc1 m d CallK0.vx' = xt m d :=
  (StableHlo.nullary_result_ne _ _ _ _ (show (main_v0 : Ref sig .tc) ≠ main_v2 by decide)).trans (Vc0_vx m d)
theorem Vc2_vx (d : Dev nD) : Vc2 m d CallK0.vx' = xt m d :=
  (StableHlo.nullary_result_ne _ _ _ _ (show (main_v0 : Ref sig .tc) ≠ main_v3 by decide)).trans (Vc1_vx m d)
theorem Vc3_vx (d : Dev nD) : Vc3 m d CallK0.vx' = xt m d :=
  (StableHlo.nullary_result_ne _ _ _ _ (show (main_v0 : Ref sig .tc) ≠ main_v4 by decide)).trans (Vc2_vx m d)
theorem Vc4_vx (d : Dev nD) : Vc4 m d CallK0.vx' = xt m d :=
  (StableHlo.nullary_result_ne _ _ _ _ (show (main_v0 : Ref sig .tc) ≠ main_v5 by decide)).trans (Vc3_vx m d)
theorem Vc5_vx (d : Dev nD) : Vc5 m d CallK0.vx' = xt m d :=
  (StableHlo.nullary_result_ne _ _ _ _ (show (main_v0 : Ref sig .tc) ≠ main_v6 by decide)).trans (Vc4_vx m d)
theorem Vc6_vx (d : Dev nD) : Vc6 m d CallK0.vx' = xt m d :=
  (StableHlo.nullary_result_ne _ _ _ _ (show (main_v0 : Ref sig .tc) ≠ main_v7 by decide)).trans (Vc5_vx m d)
theorem Vc7_vx (d : Dev nD) : Vc7 m d CallK0.vx' = xt m d :=
  (StableHlo.nullary_result_ne _ _ _ _ (show (main_v0 : Ref sig .tc) ≠ main_v8 by decide)).trans (Vc6_vx m d)
theorem Vc8_vx (d : Dev nD) : Vc8 m d CallK0.vx' = xt m d :=
  (StableHlo.nullary_result_ne _ _ _ _ (show (main_v0 : Ref sig .tc) ≠ main_v9 by decide)).trans (Vc7_vx m d)
theorem Vc9_vx (d : Dev nD) : Vc9 m d CallK0.vx' = xt m d :=
  (StableHlo.nullary_result_ne _ _ _ _ (show (main_v0 : Ref sig .tc) ≠ main_v10 by decide)).trans (Vc8_vx m d)
theorem Vc10_vx (d : Dev nD) : Vc10 m d CallK0.vx' = xt m d :=
  (StableHlo.nullary_result_ne _ _ _ _ (show (main_v0 : Ref sig .tc) ≠ main_v11 by decide)).trans (Vc9_vx m d)
theorem Vc11_vx (d : Dev nD) : Vc11 m d CallK0.vx' = xt m d :=
  (StableHlo.nullary_result_ne _ _ _ _ (show (main_v0 : Ref sig .tc) ≠ main_v12 by decide)).trans (Vc10_vx m d)
theorem Vc12_vx (d : Dev nD) : Vc12 m d CallK0.vx' = xt m d :=
  (StableHlo.nullary_result_ne _ _ _ _ (show (main_v0 : Ref sig .tc) ≠ main_v13 by decide)).trans (Vc11_vx m d)
theorem Vc13_vx (d : Dev nD) : Vc13 m d CallK0.vx' = xt m d :=
  (StableHlo.nullary_result_ne _ _ _ _ (show (main_v0 : Ref sig .tc) ≠ main_v14 by decide)).trans (Vc12_vx m d)
theorem Vc14_vx (d : Dev nD) : Vc14 m d CallK0.vx' = xt m d :=
  (StableHlo.nullary_result_ne _ _ _ _ (show (main_v0 : Ref sig .tc) ≠ main_v15 by decide)).trans (Vc13_vx m d)
theorem Vc15_vx (d : Dev nD) : Vc15 m d CallK0.vx' = xt m d :=
  (StableHlo.nullary_result_ne _ _ _ _ (show (main_v0 : Ref sig .tc) ≠ main_v16 by decide)).trans (Vc14_vx m d)
theorem Vc16_vx (d : Dev nD) : Vc16 m d CallK0.vx' = xt m d :=
  (StableHlo.nullary_result_ne _ _ _ _ (show (main_v0 : Ref sig .tc) ≠ main_v17 by decide)).trans (Vc15_vx m d)
theorem Vc17_vx (d : Dev nD) : Vc17 m d CallK0.vx' = xt m d :=
  (StableHlo.nullary_result_ne _ _ _ _ (show (main_v0 : Ref sig .tc) ≠ main_v18 by decide)).trans (Vc16_vx m d)
theorem Vc18_vx (d : Dev nD) : Vc18 m d CallK0.vx' = xt m d :=
  (StableHlo.nullary_result_ne _ _ _ _ (show (main_v0 : Ref sig .tc) ≠ main_v19 by decide)).trans (Vc17_vx m d)
theorem Vc19_vx (d : Dev nD) : Vc19 m d CallK0.vx' = xt m d :=
  (StableHlo.nullary_result_ne _ _ _ _ (show (main_v0 : Ref sig .tc) ≠ main_v20 by decide)).trans (Vc18_vx m d)
theorem Vc20_vx (d : Dev nD) : Vc20 m d CallK0.vx' = xt m d :=
  (StableHlo.nullary_result_ne _ _ _ _ (show (main_v0 : Ref sig .tc) ≠ main_v21 by decide)).trans (Vc19_vx m d)
theorem Vc21_vx (d : Dev nD) : Vc21 m d CallK0.vx' = xt m d :=
  (StableHlo.nullary_result_ne _ _ _ _ (show (main_v0 : Ref sig .tc) ≠ main_v22 by decide)).trans (Vc20_vx m d)

omit [FloatOps F] in
theorem unscoped_held (d : Dev nD) :
    (unscopedBufs d (fun b => m ((SparseCore.T d).loc b)) : sProp 𝕄) = held (SparseCore.T d) (tcRefs τ sig) (V0 m d) := by
  unfold unscopedBufs
  rw [show (Finset.univ.filter fun b : Ref sig .tc => ¬ b.isScoped) = Finset.univ by decide]
  unfold held tcRefs; rw [bigSep_map]; rfl

/-- What @main leaves the claim: every buffer of the TensorCore at the last valuation. -/
abbrev FIN (d : Dev nD) : sProp 𝕄 := held (SparseCore.T d) (tcRefs τ sig) (Vr21 m d)

set_option maxRecDepth 8192 in
/-- @main on device d's TensorCore: the transpose, the 22 calls, the 22 reshapes. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 22 ∗ FIN m d) := by
  unfold SparseCore.Cfg.tcRes
  rw [unscoped_held]
  simp only [main, wp_bind, wp_pure]
  iintro ⟨#Hctx, Hst, ⟨Hb, Hheld, -, -⟩, -⟩
  iapply (wp_hlo_within 𝒱 (SparseCore.T d) none Set.univ (op := opT) (S := tcRefs τ sig) (StableHlo.unary_bufs_sub ..) (V := V0 m d)) $$ [Hb Hheld]
  · isplitl [Hb]; · iexact Hb
    iexact Hheld
  iintro ⟨Hb, Hheld⟩
  rw [wp_ret]; imodintro
  iapply (CallK0.step m κ d (Vt m d) (Vt_vx m d)) $$ [Hst Hheld Hb]
  isplitr; · iexact Hctx
  isplitl [Hst]; · iexact Hst
  isplitl [Hheld]; · iexact Hheld
  iintro ⟨Hst, Hheld⟩
  iapply (CallK1.step m κ d (Vc0 m d) (Vc0_vx m d)) $$ [Hst Hheld Hb]
  isplitr; · iexact Hctx
  isplitl [Hst]; · iexact Hst
  isplitl [Hheld]; · iexact Hheld
  iintro ⟨Hst, Hheld⟩
  iapply (CallK2.step m κ d (Vc1 m d) (Vc1_vx m d)) $$ [Hst Hheld Hb]
  isplitr; · iexact Hctx
  isplitl [Hst]; · iexact Hst
  isplitl [Hheld]; · iexact Hheld
  iintro ⟨Hst, Hheld⟩
  iapply (CallK3.step m κ d (Vc2 m d) (Vc2_vx m d)) $$ [Hst Hheld Hb]
  isplitr; · iexact Hctx
  isplitl [Hst]; · iexact Hst
  isplitl [Hheld]; · iexact Hheld
  iintro ⟨Hst, Hheld⟩
  iapply (CallK4.step m κ d (Vc3 m d) (Vc3_vx m d)) $$ [Hst Hheld Hb]
  isplitr; · iexact Hctx
  isplitl [Hst]; · iexact Hst
  isplitl [Hheld]; · iexact Hheld
  iintro ⟨Hst, Hheld⟩
  iapply (CallK5.step m κ d (Vc4 m d) (Vc4_vx m d)) $$ [Hst Hheld Hb]
  isplitr; · iexact Hctx
  isplitl [Hst]; · iexact Hst
  isplitl [Hheld]; · iexact Hheld
  iintro ⟨Hst, Hheld⟩
  iapply (CallK6.step m κ d (Vc5 m d) (Vc5_vx m d)) $$ [Hst Hheld Hb]
  isplitr; · iexact Hctx
  isplitl [Hst]; · iexact Hst
  isplitl [Hheld]; · iexact Hheld
  iintro ⟨Hst, Hheld⟩
  iapply (CallK7.step m κ d (Vc6 m d) (Vc6_vx m d)) $$ [Hst Hheld Hb]
  isplitr; · iexact Hctx
  isplitl [Hst]; · iexact Hst
  isplitl [Hheld]; · iexact Hheld
  iintro ⟨Hst, Hheld⟩
  iapply (CallK8.step m κ d (Vc7 m d) (Vc7_vx m d)) $$ [Hst Hheld Hb]
  isplitr; · iexact Hctx
  isplitl [Hst]; · iexact Hst
  isplitl [Hheld]; · iexact Hheld
  iintro ⟨Hst, Hheld⟩
  iapply (CallK9.step m κ d (Vc8 m d) (Vc8_vx m d)) $$ [Hst Hheld Hb]
  isplitr; · iexact Hctx
  isplitl [Hst]; · iexact Hst
  isplitl [Hheld]; · iexact Hheld
  iintro ⟨Hst, Hheld⟩
  iapply (CallK10.step m κ d (Vc9 m d) (Vc9_vx m d)) $$ [Hst Hheld Hb]
  isplitr; · iexact Hctx
  isplitl [Hst]; · iexact Hst
  isplitl [Hheld]; · iexact Hheld
  iintro ⟨Hst, Hheld⟩
  iapply (CallK11.step m κ d (Vc10 m d) (Vc10_vx m d)) $$ [Hst Hheld Hb]
  isplitr; · iexact Hctx
  isplitl [Hst]; · iexact Hst
  isplitl [Hheld]; · iexact Hheld
  iintro ⟨Hst, Hheld⟩
  iapply (CallK12.step m κ d (Vc11 m d) (Vc11_vx m d)) $$ [Hst Hheld Hb]
  isplitr; · iexact Hctx
  isplitl [Hst]; · iexact Hst
  isplitl [Hheld]; · iexact Hheld
  iintro ⟨Hst, Hheld⟩
  iapply (CallK13.step m κ d (Vc12 m d) (Vc12_vx m d)) $$ [Hst Hheld Hb]
  isplitr; · iexact Hctx
  isplitl [Hst]; · iexact Hst
  isplitl [Hheld]; · iexact Hheld
  iintro ⟨Hst, Hheld⟩
  iapply (CallK14.step m κ d (Vc13 m d) (Vc13_vx m d)) $$ [Hst Hheld Hb]
  isplitr; · iexact Hctx
  isplitl [Hst]; · iexact Hst
  isplitl [Hheld]; · iexact Hheld
  iintro ⟨Hst, Hheld⟩
  iapply (CallK15.step m κ d (Vc14 m d) (Vc14_vx m d)) $$ [Hst Hheld Hb]
  isplitr; · iexact Hctx
  isplitl [Hst]; · iexact Hst
  isplitl [Hheld]; · iexact Hheld
  iintro ⟨Hst, Hheld⟩
  iapply (CallK16.step m κ d (Vc15 m d) (Vc15_vx m d)) $$ [Hst Hheld Hb]
  isplitr; · iexact Hctx
  isplitl [Hst]; · iexact Hst
  isplitl [Hheld]; · iexact Hheld
  iintro ⟨Hst, Hheld⟩
  iapply (CallK17.step m κ d (Vc16 m d) (Vc16_vx m d)) $$ [Hst Hheld Hb]
  isplitr; · iexact Hctx
  isplitl [Hst]; · iexact Hst
  isplitl [Hheld]; · iexact Hheld
  iintro ⟨Hst, Hheld⟩
  iapply (CallK18.step m κ d (Vc17 m d) (Vc17_vx m d)) $$ [Hst Hheld Hb]
  isplitr; · iexact Hctx
  isplitl [Hst]; · iexact Hst
  isplitl [Hheld]; · iexact Hheld
  iintro ⟨Hst, Hheld⟩
  iapply (CallK19.step m κ d (Vc18 m d) (Vc18_vx m d)) $$ [Hst Hheld Hb]
  isplitr; · iexact Hctx
  isplitl [Hst]; · iexact Hst
  isplitl [Hheld]; · iexact Hheld
  iintro ⟨Hst, Hheld⟩
  iapply (CallK20.step m κ d (Vc19 m d) (Vc19_vx m d)) $$ [Hst Hheld Hb]
  isplitr; · iexact Hctx
  isplitl [Hst]; · iexact Hst
  isplitl [Hheld]; · iexact Hheld
  iintro ⟨Hst, Hheld⟩
  iapply (CallK21.step m κ d (Vc20 m d) (Vc20_vx m d)) $$ [Hst Hheld Hb]
  isplitr; · iexact Hctx
  isplitl [Hst]; · iexact Hst
  isplitl [Hheld]; · iexact Hheld
  iintro ⟨Hst, Hheld⟩
  iapply (wp_hlo_within 𝒱 (SparseCore.T d) none Set.univ (op := opR0) (S := tcRefs τ sig) (StableHlo.reshape_bufs_sub ..) (V := Vc21 m d)) $$ [Hb Hheld]
  · isplitl [Hb]; · iexact Hb
    iexact Hheld
  iintro ⟨Hb, Hheld⟩
  rw [wp_ret]; imodintro
  iapply (wp_hlo_within 𝒱 (SparseCore.T d) none Set.univ (op := opR1) (S := tcRefs τ sig) (StableHlo.reshape_bufs_sub ..) (V := Vr0 m d)) $$ [Hb Hheld]
  · isplitl [Hb]; · iexact Hb
    iexact Hheld
  iintro ⟨Hb, Hheld⟩
  rw [wp_ret]; imodintro
  iapply (wp_hlo_within 𝒱 (SparseCore.T d) none Set.univ (op := opR2) (S := tcRefs τ sig) (StableHlo.reshape_bufs_sub ..) (V := Vr1 m d)) $$ [Hb Hheld]
  · isplitl [Hb]; · iexact Hb
    iexact Hheld
  iintro ⟨Hb, Hheld⟩
  rw [wp_ret]; imodintro
  iapply (wp_hlo_within 𝒱 (SparseCore.T d) none Set.univ (op := opR3) (S := tcRefs τ sig) (StableHlo.reshape_bufs_sub ..) (V := Vr2 m d)) $$ [Hb Hheld]
  · isplitl [Hb]; · iexact Hb
    iexact Hheld
  iintro ⟨Hb, Hheld⟩
  rw [wp_ret]; imodintro
  iapply (wp_hlo_within 𝒱 (SparseCore.T d) none Set.univ (op := opR4) (S := tcRefs τ sig) (StableHlo.reshape_bufs_sub ..) (V := Vr3 m d)) $$ [Hb Hheld]
  · isplitl [Hb]; · iexact Hb
    iexact Hheld
  iintro ⟨Hb, Hheld⟩
  rw [wp_ret]; imodintro
  iapply (wp_hlo_within 𝒱 (SparseCore.T d) none Set.univ (op := opR5) (S := tcRefs τ sig) (StableHlo.reshape_bufs_sub ..) (V := Vr4 m d)) $$ [Hb Hheld]
  · isplitl [Hb]; · iexact Hb
    iexact Hheld
  iintro ⟨Hb, Hheld⟩
  rw [wp_ret]; imodintro
  iapply (wp_hlo_within 𝒱 (SparseCore.T d) none Set.univ (op := opR6) (S := tcRefs τ sig) (StableHlo.reshape_bufs_sub ..) (V := Vr5 m d)) $$ [Hb Hheld]
  · isplitl [Hb]; · iexact Hb
    iexact Hheld
  iintro ⟨Hb, Hheld⟩
  rw [wp_ret]; imodintro
  iapply (wp_hlo_within 𝒱 (SparseCore.T d) none Set.univ (op := opR7) (S := tcRefs τ sig) (StableHlo.reshape_bufs_sub ..) (V := Vr6 m d)) $$ [Hb Hheld]
  · isplitl [Hb]; · iexact Hb
    iexact Hheld
  iintro ⟨Hb, Hheld⟩
  rw [wp_ret]; imodintro
  iapply (wp_hlo_within 𝒱 (SparseCore.T d) none Set.univ (op := opR8) (S := tcRefs τ sig) (StableHlo.reshape_bufs_sub ..) (V := Vr7 m d)) $$ [Hb Hheld]
  · isplitl [Hb]; · iexact Hb
    iexact Hheld
  iintro ⟨Hb, Hheld⟩
  rw [wp_ret]; imodintro
  iapply (wp_hlo_within 𝒱 (SparseCore.T d) none Set.univ (op := opR9) (S := tcRefs τ sig) (StableHlo.reshape_bufs_sub ..) (V := Vr8 m d)) $$ [Hb Hheld]
  · isplitl [Hb]; · iexact Hb
    iexact Hheld
  iintro ⟨Hb, Hheld⟩
  rw [wp_ret]; imodintro
  iapply (wp_hlo_within 𝒱 (SparseCore.T d) none Set.univ (op := opR10) (S := tcRefs τ sig) (StableHlo.reshape_bufs_sub ..) (V := Vr9 m d)) $$ [Hb Hheld]
  · isplitl [Hb]; · iexact Hb
    iexact Hheld
  iintro ⟨Hb, Hheld⟩
  rw [wp_ret]; imodintro
  iapply (wp_hlo_within 𝒱 (SparseCore.T d) none Set.univ (op := opR11) (S := tcRefs τ sig) (StableHlo.reshape_bufs_sub ..) (V := Vr10 m d)) $$ [Hb Hheld]
  · isplitl [Hb]; · iexact Hb
    iexact Hheld
  iintro ⟨Hb, Hheld⟩
  rw [wp_ret]; imodintro
  iapply (wp_hlo_within 𝒱 (SparseCore.T d) none Set.univ (op := opR12) (S := tcRefs τ sig) (StableHlo.reshape_bufs_sub ..) (V := Vr11 m d)) $$ [Hb Hheld]
  · isplitl [Hb]; · iexact Hb
    iexact Hheld
  iintro ⟨Hb, Hheld⟩
  rw [wp_ret]; imodintro
  iapply (wp_hlo_within 𝒱 (SparseCore.T d) none Set.univ (op := opR13) (S := tcRefs τ sig) (StableHlo.reshape_bufs_sub ..) (V := Vr12 m d)) $$ [Hb Hheld]
  · isplitl [Hb]; · iexact Hb
    iexact Hheld
  iintro ⟨Hb, Hheld⟩
  rw [wp_ret]; imodintro
  iapply (wp_hlo_within 𝒱 (SparseCore.T d) none Set.univ (op := opR14) (S := tcRefs τ sig) (StableHlo.reshape_bufs_sub ..) (V := Vr13 m d)) $$ [Hb Hheld]
  · isplitl [Hb]; · iexact Hb
    iexact Hheld
  iintro ⟨Hb, Hheld⟩
  rw [wp_ret]; imodintro
  iapply (wp_hlo_within 𝒱 (SparseCore.T d) none Set.univ (op := opR15) (S := tcRefs τ sig) (StableHlo.reshape_bufs_sub ..) (V := Vr14 m d)) $$ [Hb Hheld]
  · isplitl [Hb]; · iexact Hb
    iexact Hheld
  iintro ⟨Hb, Hheld⟩
  rw [wp_ret]; imodintro
  iapply (wp_hlo_within 𝒱 (SparseCore.T d) none Set.univ (op := opR16) (S := tcRefs τ sig) (StableHlo.reshape_bufs_sub ..) (V := Vr15 m d)) $$ [Hb Hheld]
  · isplitl [Hb]; · iexact Hb
    iexact Hheld
  iintro ⟨Hb, Hheld⟩
  rw [wp_ret]; imodintro
  iapply (wp_hlo_within 𝒱 (SparseCore.T d) none Set.univ (op := opR17) (S := tcRefs τ sig) (StableHlo.reshape_bufs_sub ..) (V := Vr16 m d)) $$ [Hb Hheld]
  · isplitl [Hb]; · iexact Hb
    iexact Hheld
  iintro ⟨Hb, Hheld⟩
  rw [wp_ret]; imodintro
  iapply (wp_hlo_within 𝒱 (SparseCore.T d) none Set.univ (op := opR18) (S := tcRefs τ sig) (StableHlo.reshape_bufs_sub ..) (V := Vr17 m d)) $$ [Hb Hheld]
  · isplitl [Hb]; · iexact Hb
    iexact Hheld
  iintro ⟨Hb, Hheld⟩
  rw [wp_ret]; imodintro
  iapply (wp_hlo_within 𝒱 (SparseCore.T d) none Set.univ (op := opR19) (S := tcRefs τ sig) (StableHlo.reshape_bufs_sub ..) (V := Vr18 m d)) $$ [Hb Hheld]
  · isplitl [Hb]; · iexact Hb
    iexact Hheld
  iintro ⟨Hb, Hheld⟩
  rw [wp_ret]; imodintro
  iapply (wp_hlo_within 𝒱 (SparseCore.T d) none Set.univ (op := opR20) (S := tcRefs τ sig) (StableHlo.reshape_bufs_sub ..) (V := Vr19 m d)) $$ [Hb Hheld]
  · isplitl [Hb]; · iexact Hb
    iexact Hheld
  iintro ⟨Hb, Hheld⟩
  rw [wp_ret]; imodintro
  iapply (wp_hlo_within 𝒱 (SparseCore.T d) none Set.univ (op := opR21) (S := tcRefs τ sig) (StableHlo.reshape_bufs_sub ..) (V := Vr20 m d)) $$ [Hb Hheld]
  · isplitl [Hb]; · iexact Hb
    iexact Hheld
  iintro ⟨Hb, Hheld⟩
  rw [wp_ret]; imodintro
  imodintro
  isplitl [Hst]; · iexact Hst
  iexact Hheld

/-! ## What the final memory says -/

def fq (d : Dev nD) (s' : Phys nD τ sig (Elt F)) : Prop :=
  ∀ b : Ref sig .tc, s'.mem.mem ((SparseCore.T d).loc b) = Vr21 m d (Proc.devRef .tc b)

theorem hfin (d : Dev nD) (s' : Phys nD τ sig (Elt F)) : iprop(FIN m d ∗ SI s') ⊢ (⌜fq m d s'⌝ : sProp 𝕄) := by
  unfold FIN held
  iintro ⟨H, HSI⟩
  ihave %h := (SI_pointsTo_bufs_agree (qs := fun _ => fullShare) (tcRefs τ sig)) $$ [HSI H]
  · isplitl [HSI]; · iexact HSI
    iexact H
  ipureintro
  exact fun b => h _ (devRef_mem_tcRefs b)

set_option maxRecDepth 8192 in
set_option maxHeartbeats 1000000 in
theorem val0 (d : Dev nD) : Vr21 m d (Proc.devRef .tc (main_v23 : Ref sig .tc)) = resT 0 (m ((SparseCore.T d).loc main_arg0)) := by
  simp only [Vr0, Vr1, Vr2, Vr3, Vr4, Vr5, Vr6, Vr7, Vr8, Vr9, Vr10, Vr11, Vr12, Vr13, Vr14, Vr15, Vr16, Vr17, Vr18, Vr19, Vr20, Vr21, Vc0, Vc1, Vc2, Vc3, Vc4, Vc5, Vc6, Vc7, Vc8, Vc9, Vc10, Vc11, Vc12, Vc13, Vc14, Vc15, Vc16, Vc17, Vc18, Vc19, Vc20, Vc21, Vt]
  after_results_simp
  rfl
set_option maxRecDepth 8192 in
set_option maxHeartbeats 1000000 in
theorem val1 (d : Dev nD) : Vr21 m d (Proc.devRef .tc (main_v24 : Ref sig .tc)) = resT 1 (m ((SparseCore.T d).loc main_arg0)) := by
  simp only [Vr0, Vr1, Vr2, Vr3, Vr4, Vr5, Vr6, Vr7, Vr8, Vr9, Vr10, Vr11, Vr12, Vr13, Vr14, Vr15, Vr16, Vr17, Vr18, Vr19, Vr20, Vr21, Vc0, Vc1, Vc2, Vc3, Vc4, Vc5, Vc6, Vc7, Vc8, Vc9, Vc10, Vc11, Vc12, Vc13, Vc14, Vc15, Vc16, Vc17, Vc18, Vc19, Vc20, Vc21, Vt]
  after_results_simp
  rfl
set_option maxRecDepth 8192 in
set_option maxHeartbeats 1000000 in
theorem val2 (d : Dev nD) : Vr21 m d (Proc.devRef .tc (main_v25 : Ref sig .tc)) = resT 2 (m ((SparseCore.T d).loc main_arg0)) := by
  simp only [Vr0, Vr1, Vr2, Vr3, Vr4, Vr5, Vr6, Vr7, Vr8, Vr9, Vr10, Vr11, Vr12, Vr13, Vr14, Vr15, Vr16, Vr17, Vr18, Vr19, Vr20, Vr21, Vc0, Vc1, Vc2, Vc3, Vc4, Vc5, Vc6, Vc7, Vc8, Vc9, Vc10, Vc11, Vc12, Vc13, Vc14, Vc15, Vc16, Vc17, Vc18, Vc19, Vc20, Vc21, Vt]
  after_results_simp
  rfl
set_option maxRecDepth 8192 in
set_option maxHeartbeats 1000000 in
theorem val3 (d : Dev nD) : Vr21 m d (Proc.devRef .tc (main_v26 : Ref sig .tc)) = resT 3 (m ((SparseCore.T d).loc main_arg0)) := by
  simp only [Vr0, Vr1, Vr2, Vr3, Vr4, Vr5, Vr6, Vr7, Vr8, Vr9, Vr10, Vr11, Vr12, Vr13, Vr14, Vr15, Vr16, Vr17, Vr18, Vr19, Vr20, Vr21, Vc0, Vc1, Vc2, Vc3, Vc4, Vc5, Vc6, Vc7, Vc8, Vc9, Vc10, Vc11, Vc12, Vc13, Vc14, Vc15, Vc16, Vc17, Vc18, Vc19, Vc20, Vc21, Vt]
  after_results_simp
  rfl
set_option maxRecDepth 8192 in
set_option maxHeartbeats 1000000 in
theorem val4 (d : Dev nD) : Vr21 m d (Proc.devRef .tc (main_v27 : Ref sig .tc)) = resT 4 (m ((SparseCore.T d).loc main_arg0)) := by
  simp only [Vr0, Vr1, Vr2, Vr3, Vr4, Vr5, Vr6, Vr7, Vr8, Vr9, Vr10, Vr11, Vr12, Vr13, Vr14, Vr15, Vr16, Vr17, Vr18, Vr19, Vr20, Vr21, Vc0, Vc1, Vc2, Vc3, Vc4, Vc5, Vc6, Vc7, Vc8, Vc9, Vc10, Vc11, Vc12, Vc13, Vc14, Vc15, Vc16, Vc17, Vc18, Vc19, Vc20, Vc21, Vt]
  after_results_simp
  rfl
set_option maxRecDepth 8192 in
set_option maxHeartbeats 1000000 in
theorem val5 (d : Dev nD) : Vr21 m d (Proc.devRef .tc (main_v28 : Ref sig .tc)) = resT 5 (m ((SparseCore.T d).loc main_arg0)) := by
  simp only [Vr0, Vr1, Vr2, Vr3, Vr4, Vr5, Vr6, Vr7, Vr8, Vr9, Vr10, Vr11, Vr12, Vr13, Vr14, Vr15, Vr16, Vr17, Vr18, Vr19, Vr20, Vr21, Vc0, Vc1, Vc2, Vc3, Vc4, Vc5, Vc6, Vc7, Vc8, Vc9, Vc10, Vc11, Vc12, Vc13, Vc14, Vc15, Vc16, Vc17, Vc18, Vc19, Vc20, Vc21, Vt]
  after_results_simp
  rfl
set_option maxRecDepth 8192 in
set_option maxHeartbeats 1000000 in
theorem val6 (d : Dev nD) : Vr21 m d (Proc.devRef .tc (main_v29 : Ref sig .tc)) = resT 6 (m ((SparseCore.T d).loc main_arg0)) := by
  simp only [Vr0, Vr1, Vr2, Vr3, Vr4, Vr5, Vr6, Vr7, Vr8, Vr9, Vr10, Vr11, Vr12, Vr13, Vr14, Vr15, Vr16, Vr17, Vr18, Vr19, Vr20, Vr21, Vc0, Vc1, Vc2, Vc3, Vc4, Vc5, Vc6, Vc7, Vc8, Vc9, Vc10, Vc11, Vc12, Vc13, Vc14, Vc15, Vc16, Vc17, Vc18, Vc19, Vc20, Vc21, Vt]
  after_results_simp
  rfl
set_option maxRecDepth 8192 in
set_option maxHeartbeats 1000000 in
theorem val7 (d : Dev nD) : Vr21 m d (Proc.devRef .tc (main_v30 : Ref sig .tc)) = resT 7 (m ((SparseCore.T d).loc main_arg0)) := by
  simp only [Vr0, Vr1, Vr2, Vr3, Vr4, Vr5, Vr6, Vr7, Vr8, Vr9, Vr10, Vr11, Vr12, Vr13, Vr14, Vr15, Vr16, Vr17, Vr18, Vr19, Vr20, Vr21, Vc0, Vc1, Vc2, Vc3, Vc4, Vc5, Vc6, Vc7, Vc8, Vc9, Vc10, Vc11, Vc12, Vc13, Vc14, Vc15, Vc16, Vc17, Vc18, Vc19, Vc20, Vc21, Vt]
  after_results_simp
  rfl
set_option maxRecDepth 8192 in
set_option maxHeartbeats 1000000 in
theorem val8 (d : Dev nD) : Vr21 m d (Proc.devRef .tc (main_v31 : Ref sig .tc)) = resT 8 (m ((SparseCore.T d).loc main_arg0)) := by
  simp only [Vr0, Vr1, Vr2, Vr3, Vr4, Vr5, Vr6, Vr7, Vr8, Vr9, Vr10, Vr11, Vr12, Vr13, Vr14, Vr15, Vr16, Vr17, Vr18, Vr19, Vr20, Vr21, Vc0, Vc1, Vc2, Vc3, Vc4, Vc5, Vc6, Vc7, Vc8, Vc9, Vc10, Vc11, Vc12, Vc13, Vc14, Vc15, Vc16, Vc17, Vc18, Vc19, Vc20, Vc21, Vt]
  after_results_simp
  rfl
set_option maxRecDepth 8192 in
set_option maxHeartbeats 1000000 in
theorem val9 (d : Dev nD) : Vr21 m d (Proc.devRef .tc (main_v32 : Ref sig .tc)) = resT 9 (m ((SparseCore.T d).loc main_arg0)) := by
  simp only [Vr0, Vr1, Vr2, Vr3, Vr4, Vr5, Vr6, Vr7, Vr8, Vr9, Vr10, Vr11, Vr12, Vr13, Vr14, Vr15, Vr16, Vr17, Vr18, Vr19, Vr20, Vr21, Vc0, Vc1, Vc2, Vc3, Vc4, Vc5, Vc6, Vc7, Vc8, Vc9, Vc10, Vc11, Vc12, Vc13, Vc14, Vc15, Vc16, Vc17, Vc18, Vc19, Vc20, Vc21, Vt]
  after_results_simp
  rfl
set_option maxRecDepth 8192 in
set_option maxHeartbeats 1000000 in
theorem val10 (d : Dev nD) : Vr21 m d (Proc.devRef .tc (main_v33 : Ref sig .tc)) = resT 10 (m ((SparseCore.T d).loc main_arg0)) := by
  simp only [Vr0, Vr1, Vr2, Vr3, Vr4, Vr5, Vr6, Vr7, Vr8, Vr9, Vr10, Vr11, Vr12, Vr13, Vr14, Vr15, Vr16, Vr17, Vr18, Vr19, Vr20, Vr21, Vc0, Vc1, Vc2, Vc3, Vc4, Vc5, Vc6, Vc7, Vc8, Vc9, Vc10, Vc11, Vc12, Vc13, Vc14, Vc15, Vc16, Vc17, Vc18, Vc19, Vc20, Vc21, Vt]
  after_results_simp
  rfl
set_option maxRecDepth 8192 in
set_option maxHeartbeats 1000000 in
theorem val11 (d : Dev nD) : Vr21 m d (Proc.devRef .tc (main_v34 : Ref sig .tc)) = resT 11 (m ((SparseCore.T d).loc main_arg0)) := by
  simp only [Vr0, Vr1, Vr2, Vr3, Vr4, Vr5, Vr6, Vr7, Vr8, Vr9, Vr10, Vr11, Vr12, Vr13, Vr14, Vr15, Vr16, Vr17, Vr18, Vr19, Vr20, Vr21, Vc0, Vc1, Vc2, Vc3, Vc4, Vc5, Vc6, Vc7, Vc8, Vc9, Vc10, Vc11, Vc12, Vc13, Vc14, Vc15, Vc16, Vc17, Vc18, Vc19, Vc20, Vc21, Vt]
  after_results_simp
  rfl
set_option maxRecDepth 8192 in
set_option maxHeartbeats 1000000 in
theorem val12 (d : Dev nD) : Vr21 m d (Proc.devRef .tc (main_v35 : Ref sig .tc)) = resT 12 (m ((SparseCore.T d).loc main_arg0)) := by
  simp only [Vr0, Vr1, Vr2, Vr3, Vr4, Vr5, Vr6, Vr7, Vr8, Vr9, Vr10, Vr11, Vr12, Vr13, Vr14, Vr15, Vr16, Vr17, Vr18, Vr19, Vr20, Vr21, Vc0, Vc1, Vc2, Vc3, Vc4, Vc5, Vc6, Vc7, Vc8, Vc9, Vc10, Vc11, Vc12, Vc13, Vc14, Vc15, Vc16, Vc17, Vc18, Vc19, Vc20, Vc21, Vt]
  after_results_simp
  rfl
set_option maxRecDepth 8192 in
set_option maxHeartbeats 1000000 in
theorem val13 (d : Dev nD) : Vr21 m d (Proc.devRef .tc (main_v36 : Ref sig .tc)) = resT 13 (m ((SparseCore.T d).loc main_arg0)) := by
  simp only [Vr0, Vr1, Vr2, Vr3, Vr4, Vr5, Vr6, Vr7, Vr8, Vr9, Vr10, Vr11, Vr12, Vr13, Vr14, Vr15, Vr16, Vr17, Vr18, Vr19, Vr20, Vr21, Vc0, Vc1, Vc2, Vc3, Vc4, Vc5, Vc6, Vc7, Vc8, Vc9, Vc10, Vc11, Vc12, Vc13, Vc14, Vc15, Vc16, Vc17, Vc18, Vc19, Vc20, Vc21, Vt]
  after_results_simp
  rfl
set_option maxRecDepth 8192 in
set_option maxHeartbeats 1000000 in
theorem val14 (d : Dev nD) : Vr21 m d (Proc.devRef .tc (main_v37 : Ref sig .tc)) = resT 14 (m ((SparseCore.T d).loc main_arg0)) := by
  simp only [Vr0, Vr1, Vr2, Vr3, Vr4, Vr5, Vr6, Vr7, Vr8, Vr9, Vr10, Vr11, Vr12, Vr13, Vr14, Vr15, Vr16, Vr17, Vr18, Vr19, Vr20, Vr21, Vc0, Vc1, Vc2, Vc3, Vc4, Vc5, Vc6, Vc7, Vc8, Vc9, Vc10, Vc11, Vc12, Vc13, Vc14, Vc15, Vc16, Vc17, Vc18, Vc19, Vc20, Vc21, Vt]
  after_results_simp
  rfl
set_option maxRecDepth 8192 in
set_option maxHeartbeats 1000000 in
theorem val15 (d : Dev nD) : Vr21 m d (Proc.devRef .tc (main_v38 : Ref sig .tc)) = resT 15 (m ((SparseCore.T d).loc main_arg0)) := by
  simp only [Vr0, Vr1, Vr2, Vr3, Vr4, Vr5, Vr6, Vr7, Vr8, Vr9, Vr10, Vr11, Vr12, Vr13, Vr14, Vr15, Vr16, Vr17, Vr18, Vr19, Vr20, Vr21, Vc0, Vc1, Vc2, Vc3, Vc4, Vc5, Vc6, Vc7, Vc8, Vc9, Vc10, Vc11, Vc12, Vc13, Vc14, Vc15, Vc16, Vc17, Vc18, Vc19, Vc20, Vc21, Vt]
  after_results_simp
  rfl
set_option maxRecDepth 8192 in
set_option maxHeartbeats 1000000 in
theorem val16 (d : Dev nD) : Vr21 m d (Proc.devRef .tc (main_v39 : Ref sig .tc)) = resT 16 (m ((SparseCore.T d).loc main_arg0)) := by
  simp only [Vr0, Vr1, Vr2, Vr3, Vr4, Vr5, Vr6, Vr7, Vr8, Vr9, Vr10, Vr11, Vr12, Vr13, Vr14, Vr15, Vr16, Vr17, Vr18, Vr19, Vr20, Vr21, Vc0, Vc1, Vc2, Vc3, Vc4, Vc5, Vc6, Vc7, Vc8, Vc9, Vc10, Vc11, Vc12, Vc13, Vc14, Vc15, Vc16, Vc17, Vc18, Vc19, Vc20, Vc21, Vt]
  after_results_simp
  rfl
set_option maxRecDepth 8192 in
set_option maxHeartbeats 1000000 in
theorem val17 (d : Dev nD) : Vr21 m d (Proc.devRef .tc (main_v40 : Ref sig .tc)) = resT 17 (m ((SparseCore.T d).loc main_arg0)) := by
  simp only [Vr0, Vr1, Vr2, Vr3, Vr4, Vr5, Vr6, Vr7, Vr8, Vr9, Vr10, Vr11, Vr12, Vr13, Vr14, Vr15, Vr16, Vr17, Vr18, Vr19, Vr20, Vr21, Vc0, Vc1, Vc2, Vc3, Vc4, Vc5, Vc6, Vc7, Vc8, Vc9, Vc10, Vc11, Vc12, Vc13, Vc14, Vc15, Vc16, Vc17, Vc18, Vc19, Vc20, Vc21, Vt]
  after_results_simp
  rfl
set_option maxRecDepth 8192 in
set_option maxHeartbeats 1000000 in
theorem val18 (d : Dev nD) : Vr21 m d (Proc.devRef .tc (main_v41 : Ref sig .tc)) = resT 18 (m ((SparseCore.T d).loc main_arg0)) := by
  simp only [Vr0, Vr1, Vr2, Vr3, Vr4, Vr5, Vr6, Vr7, Vr8, Vr9, Vr10, Vr11, Vr12, Vr13, Vr14, Vr15, Vr16, Vr17, Vr18, Vr19, Vr20, Vr21, Vc0, Vc1, Vc2, Vc3, Vc4, Vc5, Vc6, Vc7, Vc8, Vc9, Vc10, Vc11, Vc12, Vc13, Vc14, Vc15, Vc16, Vc17, Vc18, Vc19, Vc20, Vc21, Vt]
  after_results_simp
  rfl
set_option maxRecDepth 8192 in
set_option maxHeartbeats 1000000 in
theorem val19 (d : Dev nD) : Vr21 m d (Proc.devRef .tc (main_v42 : Ref sig .tc)) = resT 19 (m ((SparseCore.T d).loc main_arg0)) := by
  simp only [Vr0, Vr1, Vr2, Vr3, Vr4, Vr5, Vr6, Vr7, Vr8, Vr9, Vr10, Vr11, Vr12, Vr13, Vr14, Vr15, Vr16, Vr17, Vr18, Vr19, Vr20, Vr21, Vc0, Vc1, Vc2, Vc3, Vc4, Vc5, Vc6, Vc7, Vc8, Vc9, Vc10, Vc11, Vc12, Vc13, Vc14, Vc15, Vc16, Vc17, Vc18, Vc19, Vc20, Vc21, Vt]
  after_results_simp
  rfl
set_option maxRecDepth 8192 in
set_option maxHeartbeats 1000000 in
theorem val20 (d : Dev nD) : Vr21 m d (Proc.devRef .tc (main_v43 : Ref sig .tc)) = resT 20 (m ((SparseCore.T d).loc main_arg0)) := by
  simp only [Vr0, Vr1, Vr2, Vr3, Vr4, Vr5, Vr6, Vr7, Vr8, Vr9, Vr10, Vr11, Vr12, Vr13, Vr14, Vr15, Vr16, Vr17, Vr18, Vr19, Vr20, Vr21, Vc0, Vc1, Vc2, Vc3, Vc4, Vc5, Vc6, Vc7, Vc8, Vc9, Vc10, Vc11, Vc12, Vc13, Vc14, Vc15, Vc16, Vc17, Vc18, Vc19, Vc20, Vc21, Vt]
  after_results_simp
  rfl
set_option maxRecDepth 8192 in
set_option maxHeartbeats 1000000 in
theorem val21 (d : Dev nD) : Vr21 m d (Proc.devRef .tc (main_v44 : Ref sig .tc)) = resT 21 (m ((SparseCore.T d).loc main_arg0)) := by
  simp only [Vr0, Vr1, Vr2, Vr3, Vr4, Vr5, Vr6, Vr7, Vr8, Vr9, Vr10, Vr11, Vr12, Vr13, Vr14, Vr15, Vr16, Vr17, Vr18, Vr19, Vr20, Vr21, Vc0, Vc1, Vc2, Vc3, Vc4, Vc5, Vc6, Vc7, Vc8, Vc9, Vc10, Vc11, Vc12, Vc13, Vc14, Vc15, Vc16, Vc17, Vc18, Vc19, Vc20, Vc21, Vt]
  after_results_simp
  rfl
set_option maxRecDepth 8192 in
set_option maxHeartbeats 1000000 in
theorem val_arg (d : Dev nD) : Vr21 m d (Proc.devRef .tc (main_arg0 : Ref sig .tc)) = m ((SparseCore.T d).loc main_arg0) := by
  simp only [Vr0, Vr1, Vr2, Vr3, Vr4, Vr5, Vr6, Vr7, Vr8, Vr9, Vr10, Vr11, Vr12, Vr13, Vr14, Vr15, Vr16, Vr17, Vr18, Vr19, Vr20, Vr21, Vc0, Vc1, Vc2, Vc3, Vc4, Vc5, Vc6, Vc7, Vc8, Vc9, Vc10, Vc11, Vc12, Vc13, Vc14, Vc15, Vc16, Vc17, Vc18, Vc19, Vc20, Vc21, Vt]
  after_results_simp
  rfl

/-! ## The run -/

def QC : PUnit × MemSt nD τ sig (Elt F) → Prop := fun r => ∀ c : Dev nD,
  r.2.mem ((c.tc : Thread nD τ).loc main_v23) = resT 0 (m ((c.tc : Thread nD τ).loc main_arg0))
  ∧ r.2.mem ((c.tc : Thread nD τ).loc main_v24) = resT 1 (m ((c.tc : Thread nD τ).loc main_arg0))
  ∧ r.2.mem ((c.tc : Thread nD τ).loc main_v25) = resT 2 (m ((c.tc : Thread nD τ).loc main_arg0))
  ∧ r.2.mem ((c.tc : Thread nD τ).loc main_v26) = resT 3 (m ((c.tc : Thread nD τ).loc main_arg0))
  ∧ r.2.mem ((c.tc : Thread nD τ).loc main_v27) = resT 4 (m ((c.tc : Thread nD τ).loc main_arg0))
  ∧ r.2.mem ((c.tc : Thread nD τ).loc main_v28) = resT 5 (m ((c.tc : Thread nD τ).loc main_arg0))
  ∧ r.2.mem ((c.tc : Thread nD τ).loc main_v29) = resT 6 (m ((c.tc : Thread nD τ).loc main_arg0))
  ∧ r.2.mem ((c.tc : Thread nD τ).loc main_v30) = resT 7 (m ((c.tc : Thread nD τ).loc main_arg0))
  ∧ r.2.mem ((c.tc : Thread nD τ).loc main_v31) = resT 8 (m ((c.tc : Thread nD τ).loc main_arg0))
  ∧ r.2.mem ((c.tc : Thread nD τ).loc main_v32) = resT 9 (m ((c.tc : Thread nD τ).loc main_arg0))
  ∧ r.2.mem ((c.tc : Thread nD τ).loc main_v33) = resT 10 (m ((c.tc : Thread nD τ).loc main_arg0))
  ∧ r.2.mem ((c.tc : Thread nD τ).loc main_v34) = resT 11 (m ((c.tc : Thread nD τ).loc main_arg0))
  ∧ r.2.mem ((c.tc : Thread nD τ).loc main_v35) = resT 12 (m ((c.tc : Thread nD τ).loc main_arg0))
  ∧ r.2.mem ((c.tc : Thread nD τ).loc main_v36) = resT 13 (m ((c.tc : Thread nD τ).loc main_arg0))
  ∧ r.2.mem ((c.tc : Thread nD τ).loc main_v37) = resT 14 (m ((c.tc : Thread nD τ).loc main_arg0))
  ∧ r.2.mem ((c.tc : Thread nD τ).loc main_v38) = resT 15 (m ((c.tc : Thread nD τ).loc main_arg0))
  ∧ r.2.mem ((c.tc : Thread nD τ).loc main_v39) = resT 16 (m ((c.tc : Thread nD τ).loc main_arg0))
  ∧ r.2.mem ((c.tc : Thread nD τ).loc main_v40) = resT 17 (m ((c.tc : Thread nD τ).loc main_arg0))
  ∧ r.2.mem ((c.tc : Thread nD τ).loc main_v41) = resT 18 (m ((c.tc : Thread nD τ).loc main_arg0))
  ∧ r.2.mem ((c.tc : Thread nD τ).loc main_v42) = resT 19 (m ((c.tc : Thread nD τ).loc main_arg0))
  ∧ r.2.mem ((c.tc : Thread nD τ).loc main_v43) = resT 20 (m ((c.tc : Thread nD τ).loc main_arg0))
  ∧ r.2.mem ((c.tc : Thread nD τ).loc main_v44) = resT 21 (m ((c.tc : Thread nD τ).loc main_arg0))
  ∧ r.2.mem ((c.tc : Thread nD τ).loc main_arg0) = m ((c.tc : Thread nD τ).loc main_arg0)

/-- Every weakly fair execution of the device's threads terminates, with result q at row q of the transposed argument
    reshaped to a column, and the argument unchanged — given the 22 kernels' body proofs. -/
theorem run_main [∀ e, Nonempty (Elt F e)] (htile : TileBodies F) :
    θ_run (Cert.KernelIdeal.defs (F := F)) (Cert.KernelIdeal.threads (F := F)) ⟨m, fun _ => 0, ρ⟩ (QC m) :=
  SparseCore.Cfg.θ_run_sc (K := K (F := F)) (D := D (F := F)) (𝒱 := 𝒱) (EH := EH) (P := P m) facts v₀
    (fun q hq => absurd hq (by rw [kind_eq]; decide))
    (fun q _ => tileObl m facts htile q)
    (fun q _ => SparseCore.Cfg.VecSplit.of_plain (vecSplit m q))
    m ρ main (fun _ => iprop(emp)) (FIN m) (u₀ (F := F)) (sep_elim_left.trans (hu₀ m)) (hmain m ρ) (fq m) (hfin m) (QC m)
    (fun s' h c => ⟨(h c main_v23).trans (val0 m c), (h c main_v24).trans (val1 m c), (h c main_v25).trans (val2 m c), (h c main_v26).trans (val3 m c), (h c main_v27).trans (val4 m c), (h c main_v28).trans (val5 m c), (h c main_v29).trans (val6 m c), (h c main_v30).trans (val7 m c), (h c main_v31).trans (val8 m c), (h c main_v32).trans (val9 m c), (h c main_v33).trans (val10 m c), (h c main_v34).trans (val11 m c), (h c main_v35).trans (val12 m c), (h c main_v36).trans (val13 m c), (h c main_v37).trans (val14 m c), (h c main_v38).trans (val15 m c), (h c main_v39).trans (val16 m c), (h c main_v40).trans (val17 m c), (h c main_v41).trans (val18 m c), (h c main_v42).trans (val19 m c), (h c main_v43).trans (val20 m c), (h c main_v44).trans (val21 m c), (h c main_arg0).trans (val_arg m c)⟩)

end Cert.Proof.LaunchKI

end
-- ==== Proof.TileB0Defs.lean ====
/-
  One vector subcore's task of the first copy kernel: definitions. The task moves its pieces of row 0 of the
  transposed argument (pieces of 3200 consecutive elements, piece number 2·s + c + 32·n for the subcore (c, s) and
  n = 0, 1, … while that number is below 500) into the flat result: each piece is fetched into a staging row, copied
  16 lanes at a time into a flat staging buffer, and written out, two pieces in flight at a time. Here: the pieces as
  memrefs, the program's own spellings of them, the printed conditions as facts about the trip, the two slots' states
  between trips, and what the tile holds outside the slots.
-/
import proofs.«206869_g37898791420194_cont_8to1_b_558_20_alg».proof.Defs
import Idealize.ShloMosaic.Lib.SparseCore.Launch
import Idealize.ShloMosaic.Lib.StableHlo.Run
import Idealize.ShloMosaic.Lib.Pipeline.Kit
import Idealize.ShloMosaic.Lib.Tactic
import proofs.«206869_g37898791420194_cont_8to1_b_558_20_alg».proof.Proof.Gen.Kernel
import proofs.«206869_g37898791420194_cont_8to1_b_558_20_alg».proof.Proof.Gen.Kernel.Skeleton
import proofs.«206869_g37898791420194_cont_8to1_b_558_20_alg».proof.Proof.Spec

noncomputable section

namespace Cert.Proof.TileB0

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

abbrev ΛP : Labels := Pipeline.Sig Λ₀ (Fin 0) fun p => (pcfgs (F := F) p).Adm
abbrev K : SparseCore.Cfg τ sig (ΛP (F := F)) 22 := sc (F := F)
abbrev 𝒱₀ : Variants := Variants.none

abbrev UH : Type := URounds (GSem nD τ sig) ℕ
abbrev UU : Type := UH × Counters

local notation "𝕄" => MT nD τ sig (HIx 22) (Elt F) ℕ UU ℕ

local notation "xtW" => (Memref.whole Cert.Kernel.main_v0_scv : Memref Cert.Kernel.sig Kind.scVector Space.hbm Cert.Kernel.S22x1600000 EltTy.f32)
local notation "oW" => (Memref.whole Cert.Kernel.main_v1_scv : Memref Cert.Kernel.sig Kind.scVector Space.hbm Cert.Kernel.S1600000 EltTy.f32)
local notation "a4" => (Memref.whole Cert.Kernel.cc0_scratch0 : Memref Cert.Kernel.sig Kind.scVector Space.vmem Cert.Kernel.S8x3200 EltTy.f32)
local notation "a5" => (Memref.whole Cert.Kernel.cc0_scratch1 : Memref Cert.Kernel.sig Kind.scVector Space.vmem Cert.Kernel.S8x3200 EltTy.f32)
local notation "a6" => (Memref.whole Cert.Kernel.cc0_scratch2 : Memref Cert.Kernel.sig Kind.scVector Space.vmem Cert.Kernel.S25600 EltTy.f32)
local notation "a7" => (Memref.whole Cert.Kernel.cc0_scratch3 : Memref Cert.Kernel.sig Kind.scVector Space.vmem Cert.Kernel.S25600 EltTy.f32)

variable [FloatOps F]

section Tile

variable (d : Dev nD) (L : grid0.Coords)

abbrev cV (L : grid0.Coords) : Fin τ.nSC := (L 0).castLE hcore0
abbrev jV (L : grid0.Coords) : Fin τ.nSub := (L 1).castLE hsub0
abbrev thr (d : Dev nD) (L : grid0.Coords) : Thread nD τ := V d (cV L) (jV L)

/-- The tile's number 2·s + c, and whether it has sixteen pieces (numbers below 20) or fifteen. -/
abbrev wid (L : grid0.Coords) : ℕ := 2 * (L 1).val + (L 0).val
abbrev big (L : grid0.Coords) : Prop := wid L < 20

omit [FloatOps F] in
theorem wid_lt (L : grid0.Coords) : wid L < 32 := by
  have h0 : (L 0).val < 2 := (L 0).isLt
  have h1 : (L 1).val < 16 := (L 1).isLt
  unfold wid; omega

/-- Piece `n` of the tile exists: `n < 15`, or `n = 15` on a tile with sixteen pieces. It is the piece number
    `wid + 32·n < 500` of the row. -/
def valid (L : grid0.Coords) (n : ℕ) : Prop := n < 15 ∨ (n = 15 ∧ big L)
instance (L : grid0.Coords) (n : ℕ) : Decidable (valid L n) := by unfold valid big; infer_instance

omit [FloatOps F] in
theorem valid_iff (L : grid0.Coords) (n : ℕ) : valid L n ↔ wid L + 32 * n < 500 := by
  have := wid_lt L; unfold valid big; omega

/-- Where piece `n` starts in the row (clamped to the last piece of the row, so that the rectangle is in bounds for
    every `n`; for a valid piece the clamp is idle). -/
abbrev pos (L : grid0.Coords) (n : ℕ) : ℕ := 3200 * min (wid L + 32 * n) 499

omit [FloatOps F] in
theorem pos_valid {L : grid0.Coords} {n : ℕ} (h : valid L n) : pos L n = 6400 * (L 1).val + 3200 * (L 0).val + 102400 * n := by
  have := (valid_iff L n).mp h; unfold pos wid at *; omega

omit [FloatOps F] in
theorem in_inb (L : grid0.Coords) (n : ℕ) : ∀ a, (![0, pos L n] : Fin 2 → ℕ) a + S1x3200.size a ≤ S22x1600000.size a := by
  intro a; fin_cases a
  · show 0 + 1 ≤ 22; omega
  · show pos L n + 3200 ≤ 1600000; unfold pos; omega
omit [FloatOps F] in
theorem out_inb (L : grid0.Coords) (n : ℕ) : ∀ a, (![pos L n] : Fin 1 → ℕ) a + S3200.size a ≤ S1600000.size a := by
  intro a; fin_cases a
  show pos L n + 3200 ≤ 1600000; unfold pos; omega

/-- Piece `n` of row 0 of the transposed argument, and piece `n` of the flat result, as memrefs of the tile. -/
abbrev inM (L : grid0.Coords) (n : ℕ) : Memref sig .scVector .hbm S1x3200 .f32 :=
  (xtW).slice (Rect.unit (s := S22x1600000) ![0, pos L n] S1x3200.size (in_inb L n)) (fun _ => rfl)
abbrev outM (L : grid0.Coords) (n : ℕ) : Memref sig .scVector .hbm S3200 .f32 :=
  (oW).slice (Rect.unit (s := S1600000) ![pos L n] S3200.size (out_inb L n)) (fun _ => rfl)

/-! The program's own slices are these pieces: by the closed forms of its offset functions. -/

omit [FloatOps F] in
theorem off2 {a b : ℕ} (h : a = b) : (![0, a] : Fin 2 → ℕ) = ![0, b] := by rw [h]
omit [FloatOps F] in
theorem off1' {a b : ℕ} (h : a = b) : (![a] : Fin 1 → ℕ) = ![b] := by rw [h]

omit [FloatOps F] in
theorem off_in0 (L : grid0.Coords) (h : valid L 0) : k0_off1 L 0#32 = ![0, pos L 0] :=
  (k0_off1_eq L 0).trans (off2 (by rw [pos_valid h]; simp))
omit [FloatOps F] in
theorem off_in1 (L : grid0.Coords) (h : valid L 1) : k0_off1 L 32#32 = ![0, pos L 1] :=
  (k0_off1_eq L 1).trans (off2 (by rw [pos_valid h]; simp))
omit [FloatOps F] in
theorem off_6 (L : grid0.Coords) (t : Fin k0_t1_loop.trips) (h : valid L (2 * t.val + 2)) : k0_off6 L t = ![0, pos L (2 * t.val + 2)] :=
  (k0_off6_eq L t).trans (off2 (by rw [pos_valid h]; omega))
omit [FloatOps F] in
theorem off_11 (L : grid0.Coords) (t : Fin k0_t1_loop.trips) (h : valid L (2 * t.val + 3)) : k0_off11 L t = ![0, pos L (2 * t.val + 3)] :=
  (k0_off11_eq L t).trans (off2 (by rw [pos_valid h]; omega))
omit [FloatOps F] in
theorem off_5 (L : grid0.Coords) (t : Fin k0_t1_loop.trips) (h : valid L (2 * t.val)) : k0_off5 L t = ![pos L (2 * t.val)] :=
  (k0_off5_eq L t).trans (off1' (by rw [pos_valid h]; omega))
omit [FloatOps F] in
theorem off_10 (L : grid0.Coords) (t : Fin k0_t1_loop.trips) (h : valid L (2 * t.val + 1)) : k0_off10 L t = ![pos L (2 * t.val + 1)] :=
  (k0_off10_eq L t).trans (off1' (by rw [pos_valid h]; omega))

/-- Holding a 1 × 3200 window of the transposed argument, or a 3200 window of the result, by exactly its elements
    says the same whichever way the window's offsets are spelt. -/
theorem in_congr {off off' : Fin 2 → ℕ} (h : off = off') (p : ∀ a, off a + S1x3200.size a ≤ S22x1600000.size a)
    (p' : ∀ a, off' a + S1x3200.size a ≤ S22x1600000.size a) (f : Buf (Elt F) ((xtW).view.loc (thr d L))) :
    (((xtW).slice (Rect.unit (s := S22x1600000) off S1x3200.size p) (fun _ => rfl)).view.loc (thr d L)
        ↦[((xtW).slice (Rect.unit (s := S22x1600000) off S1x3200.size p) (fun _ => rfl)).view.set]{fullShare} f : sProp 𝕄)
      = (((xtW).slice (Rect.unit (s := S22x1600000) off' S1x3200.size p') (fun _ => rfl)).view.loc (thr d L)
        ↦[((xtW).slice (Rect.unit (s := S22x1600000) off' S1x3200.size p') (fun _ => rfl)).view.set]{fullShare} f) := by
  subst h; rfl
theorem out_congr {off off' : Fin 1 → ℕ} (h : off = off') (p : ∀ a, off a + S3200.size a ≤ S1600000.size a)
    (p' : ∀ a, off' a + S3200.size a ≤ S1600000.size a) (f : Buf (Elt F) ((oW).view.loc (thr d L))) :
    (((oW).slice (Rect.unit (s := S1600000) off S3200.size p) (fun _ => rfl)).view.loc (thr d L)
        ↦[((oW).slice (Rect.unit (s := S1600000) off S3200.size p) (fun _ => rfl)).view.set]{fullShare} f : sProp 𝕄)
      = (((oW).slice (Rect.unit (s := S1600000) off' S3200.size p') (fun _ => rfl)).view.loc (thr d L)
        ↦[((oW).slice (Rect.unit (s := S1600000) off' S3200.size p') (fun _ => rfl)).view.set]{fullShare} f) := by
  subst h; rfl

/-! The printed conditions, as facts about the trip and the tile. -/

omit [FloatOps F] in
theorem trips1 : k0_t1_loop.trips = 8 := by decide
omit [FloatOps F] in
theorem cond1_iff : ∀ (t : Fin k0_t1_loop.trips), k0_cond1 t = 1#1 ↔ 1 ≤ t.val := by decide +kernel
omit [FloatOps F] in
theorem cond2_iff : ∀ (L : grid0.Coords) (t : Fin k0_t1_loop.trips), k0_cond2 L t = 1#1 := by decide +kernel
omit [FloatOps F] in
theorem cond3_iff : ∀ (L : grid0.Coords) (t : Fin k0_t1_loop.trips), k0_cond3 L t = 1#1 ↔ t.val ≤ 6 := by decide +kernel
omit [FloatOps F] in
theorem cond4_iff : ∀ (t : Fin k0_t1_loop.trips), k0_cond4 t = 1#1 ↔ 1 ≤ t.val := by decide +kernel
omit [FloatOps F] in
theorem cond5_iff : ∀ (L : grid0.Coords) (t : Fin k0_t1_loop.trips), k0_cond5 L t = 1#1 ↔ (t.val ≤ 6 ∨ big L) := by decide +kernel
omit [FloatOps F] in
theorem cond6_iff : ∀ (L : grid0.Coords) (t : Fin k0_t1_loop.trips), k0_cond6 L t = 1#1 ↔ (t.val ≤ 5 ∨ (t.val = 6 ∧ big L)) := by decide +kernel
omit [FloatOps F] in
theorem cond7_iff : ∀ (L : grid0.Coords), k0_cond7 L = 1#1 := by decide +kernel
omit [FloatOps F] in
theorem cond8_iff : ∀ (L : grid0.Coords), k0_cond8 L = 1#1 ↔ big L := by decide +kernel

variable (O : CellTallies nD τ sig (HIx 22)) (W : Waits sig (HIx 22))
variable (fx : Buf (Elt F) ((xtW).view.loc (thr d L)))

abbrev NN : ℕ := 102400

/-- The 3200-element window of a flat staging buffer that a piece is written out from. -/
abbrev stg (a : Memref sig .scVector .vmem S25600 .f32) : Memref sig .scVector .vmem S3200 .f32 :=
  a.slice (Rect.unit (s := S25600) ![0] S3200.size inb_S25600_S3200_0) (fun _ => rfl)

/-- Piece `n` of the argument row held by exactly its elements, at the argument's contents; piece `n` of the result
    held by exactly its elements, at some contents. -/
abbrev xtPiece (n : ℕ) : sProp 𝕄 := (inM L n).view.loc (thr d L) ↦[(inM L n).view.set]{fullShare} fx
abbrev oPiece (n : ℕ) : sProp 𝕄 := iprop(∃ f, (outM L n).view.loc (thr d L) ↦[(outM L n).view.set]{fullShare} f)

/-- The lane-copy loop of a slot: the staging row keeps its contents, the flat staging buffer holds some contents. -/
def laneInv0 (g4 : Buf (Elt F) ((a4).view.loc (thr d L))) (_ : ℕ) (_ : PUnit) : sProp 𝕄 :=
  iprop(((a4).view.loc (thr d L) ↦{fullShare} g4) ∗ (∃ g, (a6).view.loc (thr d L) ↦{fullShare} g))
def laneInv1 (g5 : Buf (Elt F) ((a5).view.loc (thr d L))) (_ : ℕ) (_ : PUnit) : sProp 𝕄 :=
  iprop(((a5).view.loc (thr d L) ↦{fullShare} g5) ∗ (∃ g, (a7).view.loc (thr d L) ↦{fullShare} g))

/-- A fetch slot before trip work on piece `n`: the piece's fetch in flight (it will hand back the staging row at some
    contents, and the piece), or, when there is no such piece, the slot idle. -/
def inSlot (a : Memref sig .scVector .vmem S8x3200 .f32) (sm : DmaSem sig) (n : ℕ) : sProp 𝕄 :=
  if valid L n then
    iprop(∃ g, Transfers.Flight countersEmb (thr d L) (SemLoc.dma sm) (default : HIx 22) NN
      iprop((a.view.loc (thr d L) ↦{fullShare} g) ∗ xtPiece d L fx n))
  else iprop((∃ g, a.view.loc (thr d L) ↦{fullShare} g) ∗ semVal (thr d L, SemLoc.dma sm) 0)

/-- A write-out slot before trip work on piece `m`: piece `m - 2`'s write-out in flight (it will hand back that piece
    of the result at some contents, and the staging window), the rest of the staging buffer beside it; or idle. -/
def outSlot (a : Memref sig .scVector .vmem S25600 .f32) (sm : DmaSem sig) (m : ℕ) : sProp 𝕄 :=
  if 2 ≤ m ∧ valid L (m - 2) then
    iprop(∃ g, Transfers.Flight countersEmb (thr d L) (SemLoc.dma sm) (default : HIx 22) NN
        iprop(oPiece d L (m - 2) ∗ ((stg a).view.loc (thr d L) ↦[(stg a).view.set]{fullShare} g))
      ∗ (a.view.loc (thr d L) ↦[Finset.univ \ (stg a).view.set]{fullShare} g))
  else iprop((∃ g, a.view.loc (thr d L) ↦{fullShare} g) ∗ semVal (thr d L, SemLoc.dma sm) 0)

/-- Piece `n` when it exists, nothing otherwise. -/
def xP (n : ℕ) : sProp 𝕄 := if valid L n then xtPiece d L fx n else iprop(emp)
def oP (n : ℕ) : sProp 𝕄 := if valid L n then oPiece d L n else iprop(emp)

/-- What the tile holds outside the slots before trip `t`: every piece of the argument row but those being fetched
    (`2t`, `2t + 1`), every piece of the result but those being written out (`2t - 2`, `2t - 1`). -/
def xSet (t : ℕ) : Finset ℕ := (Finset.range 18).filter fun n => n ≠ 2 * t ∧ n ≠ 2 * t + 1
def oSet (t : ℕ) : Finset ℕ := (Finset.range 18).filter fun n => n + 2 ≠ 2 * t ∧ n + 2 ≠ 2 * t + 1

def inv (t : ℕ) (_ : PUnit) : sProp 𝕄 :=
  iprop(Transfers.MayWaits (thr d L) (none : HIx 22) O
    ∗ (∃ W', ⌜∀ p ∈ W', p ∈ W ∨ p.2 = none⌝ ∗ owes (thr d L) O W')
    ∗ bigSep (xSet t) (xP d L fx) ∗ bigSep (oSet t) (oP d L)
    ∗ inSlot d L fx a4 cc0_scratch4.sem (2 * t) ∗ outSlot d L a6 cc0_scratch6.sem (2 * t)
    ∗ inSlot d L fx a5 cc0_scratch5.sem (2 * t + 1) ∗ outSlot d L a7 cc0_scratch7.sem (2 * t + 1))

omit [FloatOps F] in
theorem two_out {Φ : ℕ → sProp 𝕄} {s : Finset ℕ} {a b : ℕ} (ha : a ∈ s) (hb : b ∈ s) (hab : a ≠ b) :
    bigSep s Φ = iprop(Φ a ∗ Φ b ∗ bigSep ((s.erase a).erase b) Φ) := by
  rw [SparseCore.bigSep_erase' ha, SparseCore.bigSep_erase' (Finset.mem_erase.mpr ⟨fun e => hab e.symm, hb⟩)]

omit [FloatOps F] in
theorem range18_split : (Finset.range 18) = insert 0 (insert 1 (xSet 0)) := by decide

theorem xRange_split (v0 : valid L 0) (v1 : valid L 1) :
    bigSep (Finset.range 18) (xP d L fx) = iprop(xtPiece d L fx 0 ∗ xtPiece d L fx 1 ∗ bigSep (xSet 0) (xP d L fx)) := by
  rw [range18_split, SparseCore.bigSep_insert' (by decide), SparseCore.bigSep_insert' (by decide)]
  unfold xP; rw [if_pos v0, if_pos v1]
omit [FloatOps F] in
theorem oSet_zero : oSet 0 = Finset.range 18 := by decide

theorem inSlot_pos {a : Memref sig .scVector .vmem S8x3200 .f32} {sm : DmaSem sig} {n : ℕ} (v : valid L n) :
    inSlot d L fx a sm n = iprop(∃ g, Transfers.Flight countersEmb (thr d L) (SemLoc.dma sm) (default : HIx 22) NN
      iprop((a.view.loc (thr d L) ↦{fullShare} g) ∗ xtPiece d L fx n)) := by unfold inSlot; rw [if_pos v]
theorem inSlot_neg {a : Memref sig .scVector .vmem S8x3200 .f32} {sm : DmaSem sig} {n : ℕ} (v : ¬ valid L n) :
    inSlot d L fx a sm n = iprop((∃ g, a.view.loc (thr d L) ↦{fullShare} g) ∗ semVal (thr d L, SemLoc.dma sm) 0) := by
  unfold inSlot; rw [if_neg v]
theorem outSlot_pos {a : Memref sig .scVector .vmem S25600 .f32} {sm : DmaSem sig} {m : ℕ} (h : 2 ≤ m ∧ valid L (m - 2)) :
    outSlot (F := F) d L a sm m = iprop(∃ g, Transfers.Flight countersEmb (thr d L) (SemLoc.dma sm) (default : HIx 22) NN
        iprop(oPiece (F := F) d L (m - 2) ∗ ((stg a).view.loc (thr d L) ↦[(stg a).view.set]{fullShare} g))
      ∗ (a.view.loc (thr d L) ↦[Finset.univ \ (stg a).view.set]{fullShare} g)) := by unfold outSlot; rw [if_pos h]
theorem outSlot_neg {a : Memref sig .scVector .vmem S25600 .f32} {sm : DmaSem sig} {m : ℕ} (h : ¬ (2 ≤ m ∧ valid L (m - 2))) :
    outSlot (F := F) d L a sm m = iprop((∃ g, a.view.loc (thr d L) ↦{fullShare} g) ∗ semVal (thr d L, SemLoc.dma sm) 0) := by
  unfold outSlot; rw [if_neg h]

/-- A fetch in flight, its source window spelt by any offsets equal to piece `n`'s, fills the fetch slot for `n`. -/
theorem fl_in {off : Fin 2 → ℕ} {n : ℕ} (h : off = ![0, pos L n]) (p : ∀ a, off a + S1x3200.size a ≤ S22x1600000.size a) (v : valid L n)
    (a : Memref sig .scVector .vmem S8x3200 .f32) (sm : DmaSem sig) :
    (iprop(∃ g, Transfers.Flight countersEmb (thr d L) (SemLoc.dma sm) (default : HIx 22) NN
        iprop((a.view.loc (thr d L) ↦{fullShare} g)
          ∗ (((xtW).slice (Rect.unit (s := S22x1600000) off S1x3200.size p) (fun _ => rfl)).view.loc (thr d L)
              ↦[((xtW).slice (Rect.unit (s := S22x1600000) off S1x3200.size p) (fun _ => rfl)).view.set]{fullShare} fx))) : sProp 𝕄)
      ⊢ inSlot d L fx a sm n := by
  rw [inSlot_pos d L fx v]
  iintro ⟨%g, H⟩
  have hD : (iprop((a.view.loc (thr d L) ↦{fullShare} g)
          ∗ (((xtW).slice (Rect.unit (s := S22x1600000) off S1x3200.size p) (fun _ => rfl)).view.loc (thr d L)
              ↦[((xtW).slice (Rect.unit (s := S22x1600000) off S1x3200.size p) (fun _ => rfl)).view.set]{fullShare} fx)) : sProp 𝕄)
      ⊢ iprop((a.view.loc (thr d L) ↦{fullShare} g) ∗ xtPiece d L fx n) := by
    iintro ⟨H1, H2⟩
    isplitl [H1]; · iexact H1
    iapply (Entails.of_eq (in_congr d L h p (in_inb L n) fx)); iexact H2
  iexists g
  iapply (Transfers.Flight_mono countersEmb (thr d L) hD); iexact H

/-- A write-out in flight, its destination window spelt by any offsets equal to piece `n`'s, with the rest of the
    staging buffer, fills the write-out slot for `n + 2`. -/
theorem fl_out {off : Fin 1 → ℕ} {n : ℕ} (h : off = ![pos L n]) (p : ∀ a, off a + S3200.size a ≤ S1600000.size a) (v : valid L n)
    (a : Memref sig .scVector .vmem S25600 .f32) (sm : DmaSem sig) :
    (iprop(∃ (f : Buf (Elt F) ((oW).view.loc (thr d L))) (g : Buf (Elt F) (a.view.loc (thr d L))), Transfers.Flight countersEmb (thr d L) (SemLoc.dma sm) (default : HIx 22) NN
        iprop((((oW).slice (Rect.unit (s := S1600000) off S3200.size p) (fun _ => rfl)).view.loc (thr d L)
              ↦[((oW).slice (Rect.unit (s := S1600000) off S3200.size p) (fun _ => rfl)).view.set]{fullShare} f)
          ∗ ((stg a).view.loc (thr d L) ↦[(stg a).view.set]{fullShare} g))
        ∗ (a.view.loc (thr d L) ↦[Finset.univ \ (stg a).view.set]{fullShare} g)) : sProp 𝕄)
      ⊢ outSlot (F := F) d L a sm (n + 2) := by
  rw [outSlot_pos (F := F) d L (m := n + 2) ⟨by omega, by simpa using v⟩]
  iintro ⟨%f, %g, H, R⟩
  have hD : (iprop((((oW).slice (Rect.unit (s := S1600000) off S3200.size p) (fun _ => rfl)).view.loc (thr d L)
              ↦[((oW).slice (Rect.unit (s := S1600000) off S3200.size p) (fun _ => rfl)).view.set]{fullShare} f)
          ∗ ((stg a).view.loc (thr d L) ↦[(stg a).view.set]{fullShare} g)) : sProp 𝕄)
      ⊢ iprop(oPiece (F := F) d L (n + 2 - 2) ∗ ((stg a).view.loc (thr d L) ↦[(stg a).view.set]{fullShare} g)) := by
    rw [Nat.add_sub_cancel]
    iintro ⟨H1, H2⟩
    isplitl [H1]
    · iexists f; iapply (Entails.of_eq (out_congr d L h p (out_inb L n) f)); iexact H1
    · iexact H2
  iexists g
  isplitl [H]
  · iapply (Transfers.Flight_mono countersEmb (thr d L) hD); iexact H
  · iexact R

/-! The pieces outside the slots, from one trip to the next. -/
def xCore (k : ℕ) : Finset ℕ := (Finset.range 18).filter fun n => n ≠ 2 * k ∧ n ≠ 2 * k + 1 ∧ n ≠ 2 * k + 2 ∧ n ≠ 2 * k + 3
def oCore (k : ℕ) : Finset ℕ := (Finset.range 18).filter fun n => n + 2 ≠ 2 * k ∧ n + 2 ≠ 2 * k + 1 ∧ n ≠ 2 * k ∧ n ≠ 2 * k + 1

omit [FloatOps F] in
theorem xSet_out (Φ : ℕ → sProp 𝕄) (k : ℕ) (hk : k < 8) : bigSep (xSet k) Φ = iprop(Φ (2 * k + 2) ∗ Φ (2 * k + 3) ∗ bigSep (xCore k) Φ) := by
  have e : ((xSet k).erase (2 * k + 2)).erase (2 * k + 3) = xCore k := by
    ext n; simp only [xSet, xCore, Finset.mem_erase, Finset.mem_filter, Finset.mem_range]; omega
  rw [← e]; exact two_out (by simp only [xSet, Finset.mem_filter, Finset.mem_range]; omega) (by simp only [xSet, Finset.mem_filter, Finset.mem_range]; omega) (by omega)
omit [FloatOps F] in
theorem xSet_in (Φ : ℕ → sProp 𝕄) (k : ℕ) (hk : k < 8) : bigSep (xSet (k + 1)) Φ = iprop(Φ (2 * k) ∗ Φ (2 * k + 1) ∗ bigSep (xCore k) Φ) := by
  have e : ((xSet (k + 1)).erase (2 * k)).erase (2 * k + 1) = xCore k := by
    ext n; simp only [xSet, xCore, Finset.mem_erase, Finset.mem_filter, Finset.mem_range]; omega
  rw [← e]; exact two_out (by simp only [xSet, Finset.mem_filter, Finset.mem_range]; omega) (by simp only [xSet, Finset.mem_filter, Finset.mem_range]; omega) (by omega)
omit [FloatOps F] in
theorem oSet_out (Φ : ℕ → sProp 𝕄) (k : ℕ) (hk : k < 8) : bigSep (oSet k) Φ = iprop(Φ (2 * k) ∗ Φ (2 * k + 1) ∗ bigSep (oCore k) Φ) := by
  have e : ((oSet k).erase (2 * k)).erase (2 * k + 1) = oCore k := by
    ext n; simp only [oSet, oCore, Finset.mem_erase, Finset.mem_filter, Finset.mem_range]; omega
  rw [← e]; exact two_out (by simp only [oSet, Finset.mem_filter, Finset.mem_range]; omega) (by simp only [oSet, Finset.mem_filter, Finset.mem_range]; omega) (by omega)
omit [FloatOps F] in
theorem oSet_in (Φ : ℕ → sProp 𝕄) (k : ℕ) (hk : k < 8) (hk1 : 1 ≤ k) :
    bigSep (oSet (k + 1)) Φ = iprop(Φ (2 * k - 2) ∗ Φ (2 * k - 1) ∗ bigSep (oCore k) Φ) := by
  have e : ((oSet (k + 1)).erase (2 * k - 2)).erase (2 * k - 1) = oCore k := by
    ext n; simp only [oSet, oCore, Finset.mem_erase, Finset.mem_filter, Finset.mem_range]; omega
  rw [← e]; exact two_out (by simp only [oSet, Finset.mem_filter, Finset.mem_range]; omega) (by simp only [oSet, Finset.mem_filter, Finset.mem_range]; omega) (by omega)

theorem xP_pos {n : ℕ} (v : valid L n) : xP d L fx n = xtPiece d L fx n := if_pos v
theorem oP_pos {n : ℕ} (v : valid L n) : oP (F := F) d L n = oPiece (F := F) d L n := if_pos v
theorem xP_neg {n : ℕ} (v : ¬ valid L n) : xP d L fx n = iprop(emp) := if_neg v
theorem oP_neg {n : ℕ} (v : ¬ valid L n) : oP (F := F) d L n = iprop(emp) := if_neg v

/-- Piece `n` of the result at its final contents: row 0 of the transposed argument. -/
def oQ (n : ℕ) : sProp 𝕄 :=
  if valid L n then (outM L n).view.loc (thr d L) ↦[(outM L n).view.set]{fullShare} (Cert.Spec.row 0 fx) else iprop(emp)

/-- What a tile is handed for the call: its pieces of row 0 of the transposed argument, at the argument's contents, and
    its pieces of the result at some contents. What it hands back: the same pieces of the argument, and its pieces of
    the result holding the row. -/
def goRes : sProp 𝕄 := iprop(bigSep (Finset.range 18) (xP d L fx) ∗ bigSep (Finset.range 18) (oP (F := F) d L))
def tdRes : sProp 𝕄 := iprop(bigSep (Finset.range 18) (xP d L fx) ∗ bigSep (Finset.range 18) (oQ d L fx))

end Tile

end Cert.Proof.TileB0

end
-- ==== Proof.TileB1Defs.lean ====
/-
  One vector subcore's task of copy kernel 1 (counting from 0): definitions. The task moves its pieces of row 1 of the
  transposed argument (pieces of 3200 consecutive elements, piece number 2·s + c + 32·n for the subcore (c, s) and
  n = 0, 1, … while that number is below 500) into the flat result: each piece is fetched into a staging row, copied
  16 lanes at a time into a flat staging buffer, and written out, two pieces in flight at a time. Here: the pieces as
  memrefs, the program's own spellings of them, the printed conditions as facts about the trip, the two slots' states
  between trips, and what the tile holds outside the slots.
-/
import proofs.«206869_g37898791420194_cont_8to1_b_558_20_alg».proof.Defs
import Idealize.ShloMosaic.Lib.SparseCore.Launch
import Idealize.ShloMosaic.Lib.StableHlo.Run
import Idealize.ShloMosaic.Lib.Pipeline.Kit
import Idealize.ShloMosaic.Lib.Tactic
import proofs.«206869_g37898791420194_cont_8to1_b_558_20_alg».proof.Proof.Gen.Kernel
import proofs.«206869_g37898791420194_cont_8to1_b_558_20_alg».proof.Proof.Gen.Kernel.Skeleton
import proofs.«206869_g37898791420194_cont_8to1_b_558_20_alg».proof.Proof.Spec

noncomputable section

namespace Cert.Proof.TileB1

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

abbrev ΛP : Labels := Pipeline.Sig Λ₀ (Fin 0) fun p => (pcfgs (F := F) p).Adm
abbrev K : SparseCore.Cfg τ sig (ΛP (F := F)) 22 := sc (F := F)
abbrev 𝒱₀ : Variants := Variants.none

abbrev UH : Type := URounds (GSem nD τ sig) ℕ
abbrev UU : Type := UH × Counters

local notation "𝕄" => MT nD τ sig (HIx 22) (Elt F) ℕ UU ℕ

local notation "xtW" => (Memref.whole Cert.Kernel.main_v0_scv : Memref Cert.Kernel.sig Kind.scVector Space.hbm Cert.Kernel.S22x1600000 EltTy.f32)
local notation "oW" => (Memref.whole Cert.Kernel.main_v2_scv : Memref Cert.Kernel.sig Kind.scVector Space.hbm Cert.Kernel.S1600000 EltTy.f32)
local notation "a4" => (Memref.whole Cert.Kernel.cc1_scratch0 : Memref Cert.Kernel.sig Kind.scVector Space.vmem Cert.Kernel.S8x3200 EltTy.f32)
local notation "a5" => (Memref.whole Cert.Kernel.cc1_scratch1 : Memref Cert.Kernel.sig Kind.scVector Space.vmem Cert.Kernel.S8x3200 EltTy.f32)
local notation "a6" => (Memref.whole Cert.Kernel.cc1_scratch2 : Memref Cert.Kernel.sig Kind.scVector Space.vmem Cert.Kernel.S25600 EltTy.f32)
local notation "a7" => (Memref.whole Cert.Kernel.cc1_scratch3 : Memref Cert.Kernel.sig Kind.scVector Space.vmem Cert.Kernel.S25600 EltTy.f32)

variable [FloatOps F]

section Tile

variable (d : Dev nD) (L : grid1.Coords)

abbrev cV (L : grid1.Coords) : Fin τ.nSC := (L 0).castLE hcore1
abbrev jV (L : grid1.Coords) : Fin τ.nSub := (L 1).castLE hsub1
abbrev thr (d : Dev nD) (L : grid1.Coords) : Thread nD τ := V d (cV L) (jV L)

/-- The tile's number 2·s + c, and whether it has sixteen pieces (numbers below 20) or fifteen. -/
abbrev wid (L : grid1.Coords) : ℕ := 2 * (L 1).val + (L 0).val
abbrev big (L : grid1.Coords) : Prop := wid L < 20

omit [FloatOps F] in
theorem wid_lt (L : grid1.Coords) : wid L < 32 := by
  have h0 : (L 0).val < 2 := (L 0).isLt
  have h1 : (L 1).val < 16 := (L 1).isLt
  unfold wid; omega

/-- Piece `n` of the tile exists: `n < 15`, or `n = 15` on a tile with sixteen pieces. It is the piece number
    `wid + 32·n < 500` of the row. -/
def valid (L : grid1.Coords) (n : ℕ) : Prop := n < 15 ∨ (n = 15 ∧ big L)
instance (L : grid1.Coords) (n : ℕ) : Decidable (valid L n) := by unfold valid big; infer_instance

omit [FloatOps F] in
theorem valid_iff (L : grid1.Coords) (n : ℕ) : valid L n ↔ wid L + 32 * n < 500 := by
  have := wid_lt L; unfold valid big; omega

/-- Where piece `n` starts in the row (clamped to the last piece of the row, so that the rectangle is in bounds for
    every `n`; for a valid piece the clamp is idle). -/
abbrev pos (L : grid1.Coords) (n : ℕ) : ℕ := 3200 * min (wid L + 32 * n) 499

omit [FloatOps F] in
theorem pos_valid {L : grid1.Coords} {n : ℕ} (h : valid L n) : pos L n = 6400 * (L 1).val + 3200 * (L 0).val + 102400 * n := by
  have := (valid_iff L n).mp h; unfold pos wid at *; omega

omit [FloatOps F] in
theorem in_inb (L : grid1.Coords) (n : ℕ) : ∀ a, (![1, pos L n] : Fin 2 → ℕ) a + S1x3200.size a ≤ S22x1600000.size a := by
  intro a; fin_cases a
  · show 1 + 1 ≤ 22; omega
  · show pos L n + 3200 ≤ 1600000; unfold pos; omega
omit [FloatOps F] in
theorem out_inb (L : grid1.Coords) (n : ℕ) : ∀ a, (![pos L n] : Fin 1 → ℕ) a + S3200.size a ≤ S1600000.size a := by
  intro a; fin_cases a
  show pos L n + 3200 ≤ 1600000; unfold pos; omega

/-- Piece `n` of row 1 of the transposed argument, and piece `n` of the flat result, as memrefs of the tile. -/
abbrev inM (L : grid1.Coords) (n : ℕ) : Memref sig .scVector .hbm S1x3200 .f32 :=
  (xtW).slice (Rect.unit (s := S22x1600000) ![1, pos L n] S1x3200.size (in_inb L n)) (fun _ => rfl)
abbrev outM (L : grid1.Coords) (n : ℕ) : Memref sig .scVector .hbm S3200 .f32 :=
  (oW).slice (Rect.unit (s := S1600000) ![pos L n] S3200.size (out_inb L n)) (fun _ => rfl)

/-! The program's own slices are these pieces: by the closed forms of its offset functions. -/

omit [FloatOps F] in
theorem off2 {a b : ℕ} (h : a = b) : (![1, a] : Fin 2 → ℕ) = ![1, b] := by rw [h]
omit [FloatOps F] in
theorem off1' {a b : ℕ} (h : a = b) : (![a] : Fin 1 → ℕ) = ![b] := by rw [h]

omit [FloatOps F] in
theorem off_in0 (L : grid1.Coords) (h : valid L 0) : k1_off1 L 0#32 = ![1, pos L 0] :=
  (k1_off1_eq L 0).trans (off2 (by rw [pos_valid h]; simp))
omit [FloatOps F] in
theorem off_in1 (L : grid1.Coords) (h : valid L 1) : k1_off1 L 32#32 = ![1, pos L 1] :=
  (k1_off1_eq L 1).trans (off2 (by rw [pos_valid h]; simp))
omit [FloatOps F] in
theorem off_6 (L : grid1.Coords) (t : Fin k1_t1_loop.trips) (h : valid L (2 * t.val + 2)) : k1_off6 L t = ![1, pos L (2 * t.val + 2)] :=
  (k1_off6_eq L t).trans (off2 (by rw [pos_valid h]; omega))
omit [FloatOps F] in
theorem off_11 (L : grid1.Coords) (t : Fin k1_t1_loop.trips) (h : valid L (2 * t.val + 3)) : k1_off11 L t = ![1, pos L (2 * t.val + 3)] :=
  (k1_off11_eq L t).trans (off2 (by rw [pos_valid h]; omega))
omit [FloatOps F] in
theorem off_5 (L : grid1.Coords) (t : Fin k1_t1_loop.trips) (h : valid L (2 * t.val)) : k1_off5 L t = ![pos L (2 * t.val)] :=
  (k1_off5_eq L t).trans (off1' (by rw [pos_valid h]; omega))
omit [FloatOps F] in
theorem off_10 (L : grid1.Coords) (t : Fin k1_t1_loop.trips) (h : valid L (2 * t.val + 1)) : k1_off10 L t = ![pos L (2 * t.val + 1)] :=
  (k1_off10_eq L t).trans (off1' (by rw [pos_valid h]; omega))

/-- Holding a 1 × 3200 window of the transposed argument, or a 3200 window of the result, by exactly its elements
    says the same whichever way the window's offsets are spelt. -/
theorem in_congr {off off' : Fin 2 → ℕ} (h : off = off') (p : ∀ a, off a + S1x3200.size a ≤ S22x1600000.size a)
    (p' : ∀ a, off' a + S1x3200.size a ≤ S22x1600000.size a) (f : Buf (Elt F) ((xtW).view.loc (thr d L))) :
    (((xtW).slice (Rect.unit (s := S22x1600000) off S1x3200.size p) (fun _ => rfl)).view.loc (thr d L)
        ↦[((xtW).slice (Rect.unit (s := S22x1600000) off S1x3200.size p) (fun _ => rfl)).view.set]{fullShare} f : sProp 𝕄)
      = (((xtW).slice (Rect.unit (s := S22x1600000) off' S1x3200.size p') (fun _ => rfl)).view.loc (thr d L)
        ↦[((xtW).slice (Rect.unit (s := S22x1600000) off' S1x3200.size p') (fun _ => rfl)).view.set]{fullShare} f) := by
  subst h; rfl
theorem out_congr {off off' : Fin 1 → ℕ} (h : off = off') (p : ∀ a, off a + S3200.size a ≤ S1600000.size a)
    (p' : ∀ a, off' a + S3200.size a ≤ S1600000.size a) (f : Buf (Elt F) ((oW).view.loc (thr d L))) :
    (((oW).slice (Rect.unit (s := S1600000) off S3200.size p) (fun _ => rfl)).view.loc (thr d L)
        ↦[((oW).slice (Rect.unit (s := S1600000) off S3200.size p) (fun _ => rfl)).view.set]{fullShare} f : sProp 𝕄)
      = (((oW).slice (Rect.unit (s := S1600000) off' S3200.size p') (fun _ => rfl)).view.loc (thr d L)
        ↦[((oW).slice (Rect.unit (s := S1600000) off' S3200.size p') (fun _ => rfl)).view.set]{fullShare} f) := by
  subst h; rfl

/-! The printed conditions, as facts about the trip and the tile. -/

omit [FloatOps F] in
theorem trips1 : k1_t1_loop.trips = 8 := by decide
omit [FloatOps F] in
theorem cond1_iff : ∀ (t : Fin k1_t1_loop.trips), k1_cond1 t = 1#1 ↔ 1 ≤ t.val := by decide +kernel
omit [FloatOps F] in
theorem cond2_iff : ∀ (L : grid1.Coords) (t : Fin k1_t1_loop.trips), k1_cond2 L t = 1#1 := by decide +kernel
omit [FloatOps F] in
theorem cond3_iff : ∀ (L : grid1.Coords) (t : Fin k1_t1_loop.trips), k1_cond3 L t = 1#1 ↔ t.val ≤ 6 := by decide +kernel
omit [FloatOps F] in
theorem cond4_iff : ∀ (t : Fin k1_t1_loop.trips), k1_cond4 t = 1#1 ↔ 1 ≤ t.val := by decide +kernel
omit [FloatOps F] in
theorem cond5_iff : ∀ (L : grid1.Coords) (t : Fin k1_t1_loop.trips), k1_cond5 L t = 1#1 ↔ (t.val ≤ 6 ∨ big L) := by decide +kernel
omit [FloatOps F] in
theorem cond6_iff : ∀ (L : grid1.Coords) (t : Fin k1_t1_loop.trips), k1_cond6 L t = 1#1 ↔ (t.val ≤ 5 ∨ (t.val = 6 ∧ big L)) := by decide +kernel
omit [FloatOps F] in
theorem cond7_iff : ∀ (L : grid1.Coords), k1_cond7 L = 1#1 := by decide +kernel
omit [FloatOps F] in
theorem cond8_iff : ∀ (L : grid1.Coords), k1_cond8 L = 1#1 ↔ big L := by decide +kernel

variable (O : CellTallies nD τ sig (HIx 22)) (W : Waits sig (HIx 22))
variable (fx : Buf (Elt F) ((xtW).view.loc (thr d L)))

abbrev NN : ℕ := 102400

/-- The 3200-element window of a flat staging buffer that a piece is written out from. -/
abbrev stg (a : Memref sig .scVector .vmem S25600 .f32) : Memref sig .scVector .vmem S3200 .f32 :=
  a.slice (Rect.unit (s := S25600) ![0] S3200.size inb_S25600_S3200_0) (fun _ => rfl)

/-- Piece `n` of the argument row held by exactly its elements, at the argument's contents; piece `n` of the result
    held by exactly its elements, at some contents. -/
abbrev xtPiece (n : ℕ) : sProp 𝕄 := (inM L n).view.loc (thr d L) ↦[(inM L n).view.set]{fullShare} fx
abbrev oPiece (n : ℕ) : sProp 𝕄 := iprop(∃ f, (outM L n).view.loc (thr d L) ↦[(outM L n).view.set]{fullShare} f)

/-- The lane-copy loop of a slot: the staging row keeps its contents, the flat staging buffer holds some contents. -/
def laneInv0 (g4 : Buf (Elt F) ((a4).view.loc (thr d L))) (_ : ℕ) (_ : PUnit) : sProp 𝕄 :=
  iprop(((a4).view.loc (thr d L) ↦{fullShare} g4) ∗ (∃ g, (a6).view.loc (thr d L) ↦{fullShare} g))
def laneInv1 (g5 : Buf (Elt F) ((a5).view.loc (thr d L))) (_ : ℕ) (_ : PUnit) : sProp 𝕄 :=
  iprop(((a5).view.loc (thr d L) ↦{fullShare} g5) ∗ (∃ g, (a7).view.loc (thr d L) ↦{fullShare} g))

/-- A fetch slot before trip work on piece `n`: the piece's fetch in flight (it will hand back the staging row at some
    contents, and the piece), or, when there is no such piece, the slot idle. -/
def inSlot (a : Memref sig .scVector .vmem S8x3200 .f32) (sm : DmaSem sig) (n : ℕ) : sProp 𝕄 :=
  if valid L n then
    iprop(∃ g, Transfers.Flight countersEmb (thr d L) (SemLoc.dma sm) (default : HIx 22) NN
      iprop((a.view.loc (thr d L) ↦{fullShare} g) ∗ xtPiece d L fx n))
  else iprop((∃ g, a.view.loc (thr d L) ↦{fullShare} g) ∗ semVal (thr d L, SemLoc.dma sm) 0)

/-- A write-out slot before trip work on piece `m`: piece `m - 2`'s write-out in flight (it will hand back that piece
    of the result at some contents, and the staging window), the rest of the staging buffer beside it; or idle. -/
def outSlot (a : Memref sig .scVector .vmem S25600 .f32) (sm : DmaSem sig) (m : ℕ) : sProp 𝕄 :=
  if 2 ≤ m ∧ valid L (m - 2) then
    iprop(∃ g, Transfers.Flight countersEmb (thr d L) (SemLoc.dma sm) (default : HIx 22) NN
        iprop(oPiece d L (m - 2) ∗ ((stg a).view.loc (thr d L) ↦[(stg a).view.set]{fullShare} g))
      ∗ (a.view.loc (thr d L) ↦[Finset.univ \ (stg a).view.set]{fullShare} g))
  else iprop((∃ g, a.view.loc (thr d L) ↦{fullShare} g) ∗ semVal (thr d L, SemLoc.dma sm) 0)

/-- Piece `n` when it exists, nothing otherwise. -/
def xP (n : ℕ) : sProp 𝕄 := if valid L n then xtPiece d L fx n else iprop(emp)
def oP (n : ℕ) : sProp 𝕄 := if valid L n then oPiece d L n else iprop(emp)

/-- What the tile holds outside the slots before trip `t`: every piece of the argument row but those being fetched
    (`2t`, `2t + 1`), every piece of the result but those being written out (`2t - 2`, `2t - 1`). -/
def xSet (t : ℕ) : Finset ℕ := (Finset.range 18).filter fun n => n ≠ 2 * t ∧ n ≠ 2 * t + 1
def oSet (t : ℕ) : Finset ℕ := (Finset.range 18).filter fun n => n + 2 ≠ 2 * t ∧ n + 2 ≠ 2 * t + 1

def inv (t : ℕ) (_ : PUnit) : sProp 𝕄 :=
  iprop(Transfers.MayWaits (thr d L) (none : HIx 22) O
    ∗ (∃ W', ⌜∀ p ∈ W', p ∈ W ∨ p.2 = none⌝ ∗ owes (thr d L) O W')
    ∗ bigSep (xSet t) (xP d L fx) ∗ bigSep (oSet t) (oP d L)
    ∗ inSlot d L fx a4 cc1_scratch4.sem (2 * t) ∗ outSlot d L a6 cc1_scratch6.sem (2 * t)
    ∗ inSlot d L fx a5 cc1_scratch5.sem (2 * t + 1) ∗ outSlot d L a7 cc1_scratch7.sem (2 * t + 1))

omit [FloatOps F] in
theorem two_out {Φ : ℕ → sProp 𝕄} {s : Finset ℕ} {a b : ℕ} (ha : a ∈ s) (hb : b ∈ s) (hab : a ≠ b) :
    bigSep s Φ = iprop(Φ a ∗ Φ b ∗ bigSep ((s.erase a).erase b) Φ) := by
  rw [SparseCore.bigSep_erase' ha, SparseCore.bigSep_erase' (Finset.mem_erase.mpr ⟨fun e => hab e.symm, hb⟩)]

omit [FloatOps F] in
theorem range18_split : (Finset.range 18) = insert 0 (insert 1 (xSet 0)) := by decide

theorem xRange_split (v0 : valid L 0) (v1 : valid L 1) :
    bigSep (Finset.range 18) (xP d L fx) = iprop(xtPiece d L fx 0 ∗ xtPiece d L fx 1 ∗ bigSep (xSet 0) (xP d L fx)) := by
  rw [range18_split, SparseCore.bigSep_insert' (by decide), SparseCore.bigSep_insert' (by decide)]
  unfold xP; rw [if_pos v0, if_pos v1]
omit [FloatOps F] in
theorem oSet_zero : oSet 0 = Finset.range 18 := by decide

theorem inSlot_pos {a : Memref sig .scVector .vmem S8x3200 .f32} {sm : DmaSem sig} {n : ℕ} (v : valid L n) :
    inSlot d L fx a sm n = iprop(∃ g, Transfers.Flight countersEmb (thr d L) (SemLoc.dma sm) (default : HIx 22) NN
      iprop((a.view.loc (thr d L) ↦{fullShare} g) ∗ xtPiece d L fx n)) := by unfold inSlot; rw [if_pos v]
theorem inSlot_neg {a : Memref sig .scVector .vmem S8x3200 .f32} {sm : DmaSem sig} {n : ℕ} (v : ¬ valid L n) :
    inSlot d L fx a sm n = iprop((∃ g, a.view.loc (thr d L) ↦{fullShare} g) ∗ semVal (thr d L, SemLoc.dma sm) 0) := by
  unfold inSlot; rw [if_neg v]
theorem outSlot_pos {a : Memref sig .scVector .vmem S25600 .f32} {sm : DmaSem sig} {m : ℕ} (h : 2 ≤ m ∧ valid L (m - 2)) :
    outSlot (F := F) d L a sm m = iprop(∃ g, Transfers.Flight countersEmb (thr d L) (SemLoc.dma sm) (default : HIx 22) NN
        iprop(oPiece (F := F) d L (m - 2) ∗ ((stg a).view.loc (thr d L) ↦[(stg a).view.set]{fullShare} g))
      ∗ (a.view.loc (thr d L) ↦[Finset.univ \ (stg a).view.set]{fullShare} g)) := by unfold outSlot; rw [if_pos h]
theorem outSlot_neg {a : Memref sig .scVector .vmem S25600 .f32} {sm : DmaSem sig} {m : ℕ} (h : ¬ (2 ≤ m ∧ valid L (m - 2))) :
    outSlot (F := F) d L a sm m = iprop((∃ g, a.view.loc (thr d L) ↦{fullShare} g) ∗ semVal (thr d L, SemLoc.dma sm) 0) := by
  unfold outSlot; rw [if_neg h]

/-- A fetch in flight, its source window spelt by any offsets equal to piece `n`'s, fills the fetch slot for `n`. -/
theorem fl_in {off : Fin 2 → ℕ} {n : ℕ} (h : off = ![1, pos L n]) (p : ∀ a, off a + S1x3200.size a ≤ S22x1600000.size a) (v : valid L n)
    (a : Memref sig .scVector .vmem S8x3200 .f32) (sm : DmaSem sig) :
    (iprop(∃ g, Transfers.Flight countersEmb (thr d L) (SemLoc.dma sm) (default : HIx 22) NN
        iprop((a.view.loc (thr d L) ↦{fullShare} g)
          ∗ (((xtW).slice (Rect.unit (s := S22x1600000) off S1x3200.size p) (fun _ => rfl)).view.loc (thr d L)
              ↦[((xtW).slice (Rect.unit (s := S22x1600000) off S1x3200.size p) (fun _ => rfl)).view.set]{fullShare} fx))) : sProp 𝕄)
      ⊢ inSlot d L fx a sm n := by
  rw [inSlot_pos d L fx v]
  iintro ⟨%g, H⟩
  have hD : (iprop((a.view.loc (thr d L) ↦{fullShare} g)
          ∗ (((xtW).slice (Rect.unit (s := S22x1600000) off S1x3200.size p) (fun _ => rfl)).view.loc (thr d L)
              ↦[((xtW).slice (Rect.unit (s := S22x1600000) off S1x3200.size p) (fun _ => rfl)).view.set]{fullShare} fx)) : sProp 𝕄)
      ⊢ iprop((a.view.loc (thr d L) ↦{fullShare} g) ∗ xtPiece d L fx n) := by
    iintro ⟨H1, H2⟩
    isplitl [H1]; · iexact H1
    iapply (Entails.of_eq (in_congr d L h p (in_inb L n) fx)); iexact H2
  iexists g
  iapply (Transfers.Flight_mono countersEmb (thr d L) hD); iexact H

/-- A write-out in flight, its destination window spelt by any offsets equal to piece `n`'s, with the rest of the
    staging buffer, fills the write-out slot for `n + 2`. -/
theorem fl_out {off : Fin 1 → ℕ} {n : ℕ} (h : off = ![pos L n]) (p : ∀ a, off a + S3200.size a ≤ S1600000.size a) (v : valid L n)
    (a : Memref sig .scVector .vmem S25600 .f32) (sm : DmaSem sig) :
    (iprop(∃ (f : Buf (Elt F) ((oW).view.loc (thr d L))) (g : Buf (Elt F) (a.view.loc (thr d L))), Transfers.Flight countersEmb (thr d L) (SemLoc.dma sm) (default : HIx 22) NN
        iprop((((oW).slice (Rect.unit (s := S1600000) off S3200.size p) (fun _ => rfl)).view.loc (thr d L)
              ↦[((oW).slice (Rect.unit (s := S1600000) off S3200.size p) (fun _ => rfl)).view.set]{fullShare} f)
          ∗ ((stg a).view.loc (thr d L) ↦[(stg a).view.set]{fullShare} g))
        ∗ (a.view.loc (thr d L) ↦[Finset.univ \ (stg a).view.set]{fullShare} g)) : sProp 𝕄)
      ⊢ outSlot (F := F) d L a sm (n + 2) := by
  rw [outSlot_pos (F := F) d L (m := n + 2) ⟨by omega, by simpa using v⟩]
  iintro ⟨%f, %g, H, R⟩
  have hD : (iprop((((oW).slice (Rect.unit (s := S1600000) off S3200.size p) (fun _ => rfl)).view.loc (thr d L)
              ↦[((oW).slice (Rect.unit (s := S1600000) off S3200.size p) (fun _ => rfl)).view.set]{fullShare} f)
          ∗ ((stg a).view.loc (thr d L) ↦[(stg a).view.set]{fullShare} g)) : sProp 𝕄)
      ⊢ iprop(oPiece (F := F) d L (n + 2 - 2) ∗ ((stg a).view.loc (thr d L) ↦[(stg a).view.set]{fullShare} g)) := by
    rw [Nat.add_sub_cancel]
    iintro ⟨H1, H2⟩
    isplitl [H1]
    · iexists f; iapply (Entails.of_eq (out_congr d L h p (out_inb L n) f)); iexact H1
    · iexact H2
  iexists g
  isplitl [H]
  · iapply (Transfers.Flight_mono countersEmb (thr d L) hD); iexact H
  · iexact R

/-! The pieces outside the slots, from one trip to the next. -/
def xCore (k : ℕ) : Finset ℕ := (Finset.range 18).filter fun n => n ≠ 2 * k ∧ n ≠ 2 * k + 1 ∧ n ≠ 2 * k + 2 ∧ n ≠ 2 * k + 3
def oCore (k : ℕ) : Finset ℕ := (Finset.range 18).filter fun n => n + 2 ≠ 2 * k ∧ n + 2 ≠ 2 * k + 1 ∧ n ≠ 2 * k ∧ n ≠ 2 * k + 1

omit [FloatOps F] in
theorem xSet_out (Φ : ℕ → sProp 𝕄) (k : ℕ) (hk : k < 8) : bigSep (xSet k) Φ = iprop(Φ (2 * k + 2) ∗ Φ (2 * k + 3) ∗ bigSep (xCore k) Φ) := by
  have e : ((xSet k).erase (2 * k + 2)).erase (2 * k + 3) = xCore k := by
    ext n; simp only [xSet, xCore, Finset.mem_erase, Finset.mem_filter, Finset.mem_range]; omega
  rw [← e]; exact two_out (by simp only [xSet, Finset.mem_filter, Finset.mem_range]; omega) (by simp only [xSet, Finset.mem_filter, Finset.mem_range]; omega) (by omega)
omit [FloatOps F] in
theorem xSet_in (Φ : ℕ → sProp 𝕄) (k : ℕ) (hk : k < 8) : bigSep (xSet (k + 1)) Φ = iprop(Φ (2 * k) ∗ Φ (2 * k + 1) ∗ bigSep (xCore k) Φ) := by
  have e : ((xSet (k + 1)).erase (2 * k)).erase (2 * k + 1) = xCore k := by
    ext n; simp only [xSet, xCore, Finset.mem_erase, Finset.mem_filter, Finset.mem_range]; omega
  rw [← e]; exact two_out (by simp only [xSet, Finset.mem_filter, Finset.mem_range]; omega) (by simp only [xSet, Finset.mem_filter, Finset.mem_range]; omega) (by omega)
omit [FloatOps F] in
theorem oSet_out (Φ : ℕ → sProp 𝕄) (k : ℕ) (hk : k < 8) : bigSep (oSet k) Φ = iprop(Φ (2 * k) ∗ Φ (2 * k + 1) ∗ bigSep (oCore k) Φ) := by
  have e : ((oSet k).erase (2 * k)).erase (2 * k + 1) = oCore k := by
    ext n; simp only [oSet, oCore, Finset.mem_erase, Finset.mem_filter, Finset.mem_range]; omega
  rw [← e]; exact two_out (by simp only [oSet, Finset.mem_filter, Finset.mem_range]; omega) (by simp only [oSet, Finset.mem_filter, Finset.mem_range]; omega) (by omega)
omit [FloatOps F] in
theorem oSet_in (Φ : ℕ → sProp 𝕄) (k : ℕ) (hk : k < 8) (hk1 : 1 ≤ k) :
    bigSep (oSet (k + 1)) Φ = iprop(Φ (2 * k - 2) ∗ Φ (2 * k - 1) ∗ bigSep (oCore k) Φ) := by
  have e : ((oSet (k + 1)).erase (2 * k - 2)).erase (2 * k - 1) = oCore k := by
    ext n; simp only [oSet, oCore, Finset.mem_erase, Finset.mem_filter, Finset.mem_range]; omega
  rw [← e]; exact two_out (by simp only [oSet, Finset.mem_filter, Finset.mem_range]; omega) (by simp only [oSet, Finset.mem_filter, Finset.mem_range]; omega) (by omega)

theorem xP_pos {n : ℕ} (v : valid L n) : xP d L fx n = xtPiece d L fx n := if_pos v
theorem oP_pos {n : ℕ} (v : valid L n) : oP (F := F) d L n = oPiece (F := F) d L n := if_pos v
theorem xP_neg {n : ℕ} (v : ¬ valid L n) : xP d L fx n = iprop(emp) := if_neg v
theorem oP_neg {n : ℕ} (v : ¬ valid L n) : oP (F := F) d L n = iprop(emp) := if_neg v

/-- Piece `n` of the result at its final contents: row 1 of the transposed argument. -/
def oQ (n : ℕ) : sProp 𝕄 :=
  if valid L n then (outM L n).view.loc (thr d L) ↦[(outM L n).view.set]{fullShare} (Cert.Spec.row 1 fx) else iprop(emp)

/-- What a tile is handed for the call: its pieces of row 1 of the transposed argument, at the argument's contents, and
    its pieces of the result at some contents. What it hands back: the same pieces of the argument, and its pieces of
    the result holding the row. -/
def goRes : sProp 𝕄 := iprop(bigSep (Finset.range 18) (xP d L fx) ∗ bigSep (Finset.range 18) (oP (F := F) d L))
def tdRes : sProp 𝕄 := iprop(bigSep (Finset.range 18) (xP d L fx) ∗ bigSep (Finset.range 18) (oQ d L fx))

end Tile

end Cert.Proof.TileB1

end
-- ==== Proof.TileB2Defs.lean ====
/-
  One vector subcore's task of copy kernel 2 (counting from 0): definitions. The task moves its pieces of row 2 of the
  transposed argument (pieces of 3200 consecutive elements, piece number 2·s + c + 32·n for the subcore (c, s) and
  n = 0, 1, … while that number is below 500) into the flat result: each piece is fetched into a staging row, copied
  16 lanes at a time into a flat staging buffer, and written out, two pieces in flight at a time. Here: the pieces as
  memrefs, the program's own spellings of them, the printed conditions as facts about the trip, the two slots' states
  between trips, and what the tile holds outside the slots.
-/
import proofs.«206869_g37898791420194_cont_8to1_b_558_20_alg».proof.Defs
import Idealize.ShloMosaic.Lib.SparseCore.Launch
import Idealize.ShloMosaic.Lib.StableHlo.Run
import Idealize.ShloMosaic.Lib.Pipeline.Kit
import Idealize.ShloMosaic.Lib.Tactic
import proofs.«206869_g37898791420194_cont_8to1_b_558_20_alg».proof.Proof.Gen.Kernel
import proofs.«206869_g37898791420194_cont_8to1_b_558_20_alg».proof.Proof.Gen.Kernel.Skeleton
import proofs.«206869_g37898791420194_cont_8to1_b_558_20_alg».proof.Proof.Spec

noncomputable section

namespace Cert.Proof.TileB2

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

abbrev ΛP : Labels := Pipeline.Sig Λ₀ (Fin 0) fun p => (pcfgs (F := F) p).Adm
abbrev K : SparseCore.Cfg τ sig (ΛP (F := F)) 22 := sc (F := F)
abbrev 𝒱₀ : Variants := Variants.none

abbrev UH : Type := URounds (GSem nD τ sig) ℕ
abbrev UU : Type := UH × Counters

local notation "𝕄" => MT nD τ sig (HIx 22) (Elt F) ℕ UU ℕ

local notation "xtW" => (Memref.whole Cert.Kernel.main_v0_scv : Memref Cert.Kernel.sig Kind.scVector Space.hbm Cert.Kernel.S22x1600000 EltTy.f32)
local notation "oW" => (Memref.whole Cert.Kernel.main_v3_scv : Memref Cert.Kernel.sig Kind.scVector Space.hbm Cert.Kernel.S1600000 EltTy.f32)
local notation "a4" => (Memref.whole Cert.Kernel.cc2_scratch0 : Memref Cert.Kernel.sig Kind.scVector Space.vmem Cert.Kernel.S8x3200 EltTy.f32)
local notation "a5" => (Memref.whole Cert.Kernel.cc2_scratch1 : Memref Cert.Kernel.sig Kind.scVector Space.vmem Cert.Kernel.S8x3200 EltTy.f32)
local notation "a6" => (Memref.whole Cert.Kernel.cc2_scratch2 : Memref Cert.Kernel.sig Kind.scVector Space.vmem Cert.Kernel.S25600 EltTy.f32)
local notation "a7" => (Memref.whole Cert.Kernel.cc2_scratch3 : Memref Cert.Kernel.sig Kind.scVector Space.vmem Cert.Kernel.S25600 EltTy.f32)

variable [FloatOps F]

section Tile

variable (d : Dev nD) (L : grid2.Coords)

abbrev cV (L : grid2.Coords) : Fin τ.nSC := (L 0).castLE hcore2
abbrev jV (L : grid2.Coords) : Fin τ.nSub := (L 1).castLE hsub2
abbrev thr (d : Dev nD) (L : grid2.Coords) : Thread nD τ := V d (cV L) (jV L)

/-- The tile's number 2·s + c, and whether it has sixteen pieces (numbers below 20) or fifteen. -/
abbrev wid (L : grid2.Coords) : ℕ := 2 * (L 1).val + (L 0).val
abbrev big (L : grid2.Coords) : Prop := wid L < 20

omit [FloatOps F] in
theorem wid_lt (L : grid2.Coords) : wid L < 32 := by
  have h0 : (L 0).val < 2 := (L 0).isLt
  have h1 : (L 1).val < 16 := (L 1).isLt
  unfold wid; omega

/-- Piece `n` of the tile exists: `n < 15`, or `n = 15` on a tile with sixteen pieces. It is the piece number
    `wid + 32·n < 500` of the row. -/
def valid (L : grid2.Coords) (n : ℕ) : Prop := n < 15 ∨ (n = 15 ∧ big L)
instance (L : grid2.Coords) (n : ℕ) : Decidable (valid L n) := by unfold valid big; infer_instance

omit [FloatOps F] in
theorem valid_iff (L : grid2.Coords) (n : ℕ) : valid L n ↔ wid L + 32 * n < 500 := by
  have := wid_lt L; unfold valid big; omega

/-- Where piece `n` starts in the row (clamped to the last piece of the row, so that the rectangle is in bounds for
    every `n`; for a valid piece the clamp is idle). -/
abbrev pos (L : grid2.Coords) (n : ℕ) : ℕ := 3200 * min (wid L + 32 * n) 499

omit [FloatOps F] in
theorem pos_valid {L : grid2.Coords} {n : ℕ} (h : valid L n) : pos L n = 6400 * (L 1).val + 3200 * (L 0).val + 102400 * n := by
  have := (valid_iff L n).mp h; unfold pos wid at *; omega

omit [FloatOps F] in
theorem in_inb (L : grid2.Coords) (n : ℕ) : ∀ a, (![2, pos L n] : Fin 2 → ℕ) a + S1x3200.size a ≤ S22x1600000.size a := by
  intro a; fin_cases a
  · show 2 + 1 ≤ 22; omega
  · show pos L n + 3200 ≤ 1600000; unfold pos; omega
omit [FloatOps F] in
theorem out_inb (L : grid2.Coords) (n : ℕ) : ∀ a, (![pos L n] : Fin 1 → ℕ) a + S3200.size a ≤ S1600000.size a := by
  intro a; fin_cases a
  show pos L n + 3200 ≤ 1600000; unfold pos; omega

/-- Piece `n` of row 2 of the transposed argument, and piece `n` of the flat result, as memrefs of the tile. -/
abbrev inM (L : grid2.Coords) (n : ℕ) : Memref sig .scVector .hbm S1x3200 .f32 :=
  (xtW).slice (Rect.unit (s := S22x1600000) ![2, pos L n] S1x3200.size (in_inb L n)) (fun _ => rfl)
abbrev outM (L : grid2.Coords) (n : ℕ) : Memref sig .scVector .hbm S3200 .f32 :=
  (oW).slice (Rect.unit (s := S1600000) ![pos L n] S3200.size (out_inb L n)) (fun _ => rfl)

/-! The program's own slices are these pieces: by the closed forms of its offset functions. -/

omit [FloatOps F] in
theorem off2 {a b : ℕ} (h : a = b) : (![2, a] : Fin 2 → ℕ) = ![2, b] := by rw [h]
omit [FloatOps F] in
theorem off1' {a b : ℕ} (h : a = b) : (![a] : Fin 1 → ℕ) = ![b] := by rw [h]

omit [FloatOps F] in
theorem off_in0 (L : grid2.Coords) (h : valid L 0) : k2_off1 L 0#32 = ![2, pos L 0] :=
  (k2_off1_eq L 0).trans (off2 (by rw [pos_valid h]; simp))
omit [FloatOps F] in
theorem off_in1 (L : grid2.Coords) (h : valid L 1) : k2_off1 L 32#32 = ![2, pos L 1] :=
  (k2_off1_eq L 1).trans (off2 (by rw [pos_valid h]; simp))
omit [FloatOps F] in
theorem off_6 (L : grid2.Coords) (t : Fin k2_t1_loop.trips) (h : valid L (2 * t.val + 2)) : k2_off6 L t = ![2, pos L (2 * t.val + 2)] :=
  (k2_off6_eq L t).trans (off2 (by rw [pos_valid h]; omega))
omit [FloatOps F] in
theorem off_11 (L : grid2.Coords) (t : Fin k2_t1_loop.trips) (h : valid L (2 * t.val + 3)) : k2_off11 L t = ![2, pos L (2 * t.val + 3)] :=
  (k2_off11_eq L t).trans (off2 (by rw [pos_valid h]; omega))
omit [FloatOps F] in
theorem off_5 (L : grid2.Coords) (t : Fin k2_t1_loop.trips) (h : valid L (2 * t.val)) : k2_off5 L t = ![pos L (2 * t.val)] :=
  (k2_off5_eq L t).trans (off1' (by rw [pos_valid h]; omega))
omit [FloatOps F] in
theorem off_10 (L : grid2.Coords) (t : Fin k2_t1_loop.trips) (h : valid L (2 * t.val + 1)) : k2_off10 L t = ![pos L (2 * t.val + 1)] :=
  (k2_off10_eq L t).trans (off1' (by rw [pos_valid h]; omega))

/-- Holding a 1 × 3200 window of the transposed argument, or a 3200 window of the result, by exactly its elements
    says the same whichever way the window's offsets are spelt. -/
theorem in_congr {off off' : Fin 2 → ℕ} (h : off = off') (p : ∀ a, off a + S1x3200.size a ≤ S22x1600000.size a)
    (p' : ∀ a, off' a + S1x3200.size a ≤ S22x1600000.size a) (f : Buf (Elt F) ((xtW).view.loc (thr d L))) :
    (((xtW).slice (Rect.unit (s := S22x1600000) off S1x3200.size p) (fun _ => rfl)).view.loc (thr d L)
        ↦[((xtW).slice (Rect.unit (s := S22x1600000) off S1x3200.size p) (fun _ => rfl)).view.set]{fullShare} f : sProp 𝕄)
      = (((xtW).slice (Rect.unit (s := S22x1600000) off' S1x3200.size p') (fun _ => rfl)).view.loc (thr d L)
        ↦[((xtW).slice (Rect.unit (s := S22x1600000) off' S1x3200.size p') (fun _ => rfl)).view.set]{fullShare} f) := by
  subst h; rfl
theorem out_congr {off off' : Fin 1 → ℕ} (h : off = off') (p : ∀ a, off a + S3200.size a ≤ S1600000.size a)
    (p' : ∀ a, off' a + S3200.size a ≤ S1600000.size a) (f : Buf (Elt F) ((oW).view.loc (thr d L))) :
    (((oW).slice (Rect.unit (s := S1600000) off S3200.size p) (fun _ => rfl)).view.loc (thr d L)
        ↦[((oW).slice (Rect.unit (s := S1600000) off S3200.size p) (fun _ => rfl)).view.set]{fullShare} f : sProp 𝕄)
      = (((oW).slice (Rect.unit (s := S1600000) off' S3200.size p') (fun _ => rfl)).view.loc (thr d L)
        ↦[((oW).slice (Rect.unit (s := S1600000) off' S3200.size p') (fun _ => rfl)).view.set]{fullShare} f) := by
  subst h; rfl

/-! The printed conditions, as facts about the trip and the tile. -/

omit [FloatOps F] in
theorem trips1 : k2_t1_loop.trips = 8 := by decide
omit [FloatOps F] in
theorem cond1_iff : ∀ (t : Fin k2_t1_loop.trips), k2_cond1 t = 1#1 ↔ 1 ≤ t.val := by decide +kernel
omit [FloatOps F] in
theorem cond2_iff : ∀ (L : grid2.Coords) (t : Fin k2_t1_loop.trips), k2_cond2 L t = 1#1 := by decide +kernel
omit [FloatOps F] in
theorem cond3_iff : ∀ (L : grid2.Coords) (t : Fin k2_t1_loop.trips), k2_cond3 L t = 1#1 ↔ t.val ≤ 6 := by decide +kernel
omit [FloatOps F] in
theorem cond4_iff : ∀ (t : Fin k2_t1_loop.trips), k2_cond4 t = 1#1 ↔ 1 ≤ t.val := by decide +kernel
omit [FloatOps F] in
theorem cond5_iff : ∀ (L : grid2.Coords) (t : Fin k2_t1_loop.trips), k2_cond5 L t = 1#1 ↔ (t.val ≤ 6 ∨ big L) := by decide +kernel
omit [FloatOps F] in
theorem cond6_iff : ∀ (L : grid2.Coords) (t : Fin k2_t1_loop.trips), k2_cond6 L t = 1#1 ↔ (t.val ≤ 5 ∨ (t.val = 6 ∧ big L)) := by decide +kernel
omit [FloatOps F] in
theorem cond7_iff : ∀ (L : grid2.Coords), k2_cond7 L = 1#1 := by decide +kernel
omit [FloatOps F] in
theorem cond8_iff : ∀ (L : grid2.Coords), k2_cond8 L = 1#1 ↔ big L := by decide +kernel

variable (O : CellTallies nD τ sig (HIx 22)) (W : Waits sig (HIx 22))
variable (fx : Buf (Elt F) ((xtW).view.loc (thr d L)))

abbrev NN : ℕ := 102400

/-- The 3200-element window of a flat staging buffer that a piece is written out from. -/
abbrev stg (a : Memref sig .scVector .vmem S25600 .f32) : Memref sig .scVector .vmem S3200 .f32 :=
  a.slice (Rect.unit (s := S25600) ![0] S3200.size inb_S25600_S3200_0) (fun _ => rfl)

/-- Piece `n` of the argument row held by exactly its elements, at the argument's contents; piece `n` of the result
    held by exactly its elements, at some contents. -/
abbrev xtPiece (n : ℕ) : sProp 𝕄 := (inM L n).view.loc (thr d L) ↦[(inM L n).view.set]{fullShare} fx
abbrev oPiece (n : ℕ) : sProp 𝕄 := iprop(∃ f, (outM L n).view.loc (thr d L) ↦[(outM L n).view.set]{fullShare} f)

/-- The lane-copy loop of a slot: the staging row keeps its contents, the flat staging buffer holds some contents. -/
def laneInv0 (g4 : Buf (Elt F) ((a4).view.loc (thr d L))) (_ : ℕ) (_ : PUnit) : sProp 𝕄 :=
  iprop(((a4).view.loc (thr d L) ↦{fullShare} g4) ∗ (∃ g, (a6).view.loc (thr d L) ↦{fullShare} g))
def laneInv1 (g5 : Buf (Elt F) ((a5).view.loc (thr d L))) (_ : ℕ) (_ : PUnit) : sProp 𝕄 :=
  iprop(((a5).view.loc (thr d L) ↦{fullShare} g5) ∗ (∃ g, (a7).view.loc (thr d L) ↦{fullShare} g))

/-- A fetch slot before trip work on piece `n`: the piece's fetch in flight (it will hand back the staging row at some
    contents, and the piece), or, when there is no such piece, the slot idle. -/
def inSlot (a : Memref sig .scVector .vmem S8x3200 .f32) (sm : DmaSem sig) (n : ℕ) : sProp 𝕄 :=
  if valid L n then
    iprop(∃ g, Transfers.Flight countersEmb (thr d L) (SemLoc.dma sm) (default : HIx 22) NN
      iprop((a.view.loc (thr d L) ↦{fullShare} g) ∗ xtPiece d L fx n))
  else iprop((∃ g, a.view.loc (thr d L) ↦{fullShare} g) ∗ semVal (thr d L, SemLoc.dma sm) 0)

/-- A write-out slot before trip work on piece `m`: piece `m - 2`'s write-out in flight (it will hand back that piece
    of the result at some contents, and the staging window), the rest of the staging buffer beside it; or idle. -/
def outSlot (a : Memref sig .scVector .vmem S25600 .f32) (sm : DmaSem sig) (m : ℕ) : sProp 𝕄 :=
  if 2 ≤ m ∧ valid L (m - 2) then
    iprop(∃ g, Transfers.Flight countersEmb (thr d L) (SemLoc.dma sm) (default : HIx 22) NN
        iprop(oPiece d L (m - 2) ∗ ((stg a).view.loc (thr d L) ↦[(stg a).view.set]{fullShare} g))
      ∗ (a.view.loc (thr d L) ↦[Finset.univ \ (stg a).view.set]{fullShare} g))
  else iprop((∃ g, a.view.loc (thr d L) ↦{fullShare} g) ∗ semVal (thr d L, SemLoc.dma sm) 0)

/-- Piece `n` when it exists, nothing otherwise. -/
def xP (n : ℕ) : sProp 𝕄 := if valid L n then xtPiece d L fx n else iprop(emp)
def oP (n : ℕ) : sProp 𝕄 := if valid L n then oPiece d L n else iprop(emp)

/-- What the tile holds outside the slots before trip `t`: every piece of the argument row but those being fetched
    (`2t`, `2t + 1`), every piece of the result but those being written out (`2t - 2`, `2t - 1`). -/
def xSet (t : ℕ) : Finset ℕ := (Finset.range 18).filter fun n => n ≠ 2 * t ∧ n ≠ 2 * t + 1
def oSet (t : ℕ) : Finset ℕ := (Finset.range 18).filter fun n => n + 2 ≠ 2 * t ∧ n + 2 ≠ 2 * t + 1

def inv (t : ℕ) (_ : PUnit) : sProp 𝕄 :=
  iprop(Transfers.MayWaits (thr d L) (none : HIx 22) O
    ∗ (∃ W', ⌜∀ p ∈ W', p ∈ W ∨ p.2 = none⌝ ∗ owes (thr d L) O W')
    ∗ bigSep (xSet t) (xP d L fx) ∗ bigSep (oSet t) (oP d L)
    ∗ inSlot d L fx a4 cc2_scratch4.sem (2 * t) ∗ outSlot d L a6 cc2_scratch6.sem (2 * t)
    ∗ inSlot d L fx a5 cc2_scratch5.sem (2 * t + 1) ∗ outSlot d L a7 cc2_scratch7.sem (2 * t + 1))

omit [FloatOps F] in
theorem two_out {Φ : ℕ → sProp 𝕄} {s : Finset ℕ} {a b : ℕ} (ha : a ∈ s) (hb : b ∈ s) (hab : a ≠ b) :
    bigSep s Φ = iprop(Φ a ∗ Φ b ∗ bigSep ((s.erase a).erase b) Φ) := by
  rw [SparseCore.bigSep_erase' ha, SparseCore.bigSep_erase' (Finset.mem_erase.mpr ⟨fun e => hab e.symm, hb⟩)]

omit [FloatOps F] in
theorem range18_split : (Finset.range 18) = insert 0 (insert 1 (xSet 0)) := by decide

theorem xRange_split (v0 : valid L 0) (v1 : valid L 1) :
    bigSep (Finset.range 18) (xP d L fx) = iprop(xtPiece d L fx 0 ∗ xtPiece d L fx 1 ∗ bigSep (xSet 0) (xP d L fx)) := by
  rw [range18_split, SparseCore.bigSep_insert' (by decide), SparseCore.bigSep_insert' (by decide)]
  unfold xP; rw [if_pos v0, if_pos v1]
omit [FloatOps F] in
theorem oSet_zero : oSet 0 = Finset.range 18 := by decide

theorem inSlot_pos {a : Memref sig .scVector .vmem S8x3200 .f32} {sm : DmaSem sig} {n : ℕ} (v : valid L n) :
    inSlot d L fx a sm n = iprop(∃ g, Transfers.Flight countersEmb (thr d L) (SemLoc.dma sm) (default : HIx 22) NN
      iprop((a.view.loc (thr d L) ↦{fullShare} g) ∗ xtPiece d L fx n)) := by unfold inSlot; rw [if_pos v]
theorem inSlot_neg {a : Memref sig .scVector .vmem S8x3200 .f32} {sm : DmaSem sig} {n : ℕ} (v : ¬ valid L n) :
    inSlot d L fx a sm n = iprop((∃ g, a.view.loc (thr d L) ↦{fullShare} g) ∗ semVal (thr d L, SemLoc.dma sm) 0) := by
  unfold inSlot; rw [if_neg v]
theorem outSlot_pos {a : Memref sig .scVector .vmem S25600 .f32} {sm : DmaSem sig} {m : ℕ} (h : 2 ≤ m ∧ valid L (m - 2)) :
    outSlot (F := F) d L a sm m = iprop(∃ g, Transfers.Flight countersEmb (thr d L) (SemLoc.dma sm) (default : HIx 22) NN
        iprop(oPiece (F := F) d L (m - 2) ∗ ((stg a).view.loc (thr d L) ↦[(stg a).view.set]{fullShare} g))
      ∗ (a.view.loc (thr d L) ↦[Finset.univ \ (stg a).view.set]{fullShare} g)) := by unfold outSlot; rw [if_pos h]
theorem outSlot_neg {a : Memref sig .scVector .vmem S25600 .f32} {sm : DmaSem sig} {m : ℕ} (h : ¬ (2 ≤ m ∧ valid L (m - 2))) :
    outSlot (F := F) d L a sm m = iprop((∃ g, a.view.loc (thr d L) ↦{fullShare} g) ∗ semVal (thr d L, SemLoc.dma sm) 0) := by
  unfold outSlot; rw [if_neg h]

/-- A fetch in flight, its source window spelt by any offsets equal to piece `n`'s, fills the fetch slot for `n`. -/
theorem fl_in {off : Fin 2 → ℕ} {n : ℕ} (h : off = ![2, pos L n]) (p : ∀ a, off a + S1x3200.size a ≤ S22x1600000.size a) (v : valid L n)
    (a : Memref sig .scVector .vmem S8x3200 .f32) (sm : DmaSem sig) :
    (iprop(∃ g, Transfers.Flight countersEmb (thr d L) (SemLoc.dma sm) (default : HIx 22) NN
        iprop((a.view.loc (thr d L) ↦{fullShare} g)
          ∗ (((xtW).slice (Rect.unit (s := S22x1600000) off S1x3200.size p) (fun _ => rfl)).view.loc (thr d L)
              ↦[((xtW).slice (Rect.unit (s := S22x1600000) off S1x3200.size p) (fun _ => rfl)).view.set]{fullShare} fx))) : sProp 𝕄)
      ⊢ inSlot d L fx a sm n := by
  rw [inSlot_pos d L fx v]
  iintro ⟨%g, H⟩
  have hD : (iprop((a.view.loc (thr d L) ↦{fullShare} g)
          ∗ (((xtW).slice (Rect.unit (s := S22x1600000) off S1x3200.size p) (fun _ => rfl)).view.loc (thr d L)
              ↦[((xtW).slice (Rect.unit (s := S22x1600000) off S1x3200.size p) (fun _ => rfl)).view.set]{fullShare} fx)) : sProp 𝕄)
      ⊢ iprop((a.view.loc (thr d L) ↦{fullShare} g) ∗ xtPiece d L fx n) := by
    iintro ⟨H1, H2⟩
    isplitl [H1]; · iexact H1
    iapply (Entails.of_eq (in_congr d L h p (in_inb L n) fx)); iexact H2
  iexists g
  iapply (Transfers.Flight_mono countersEmb (thr d L) hD); iexact H

/-- A write-out in flight, its destination window spelt by any offsets equal to piece `n`'s, with the rest of the
    staging buffer, fills the write-out slot for `n + 2`. -/
theorem fl_out {off : Fin 1 → ℕ} {n : ℕ} (h : off = ![pos L n]) (p : ∀ a, off a + S3200.size a ≤ S1600000.size a) (v : valid L n)
    (a : Memref sig .scVector .vmem S25600 .f32) (sm : DmaSem sig) :
    (iprop(∃ (f : Buf (Elt F) ((oW).view.loc (thr d L))) (g : Buf (Elt F) (a.view.loc (thr d L))), Transfers.Flight countersEmb (thr d L) (SemLoc.dma sm) (default : HIx 22) NN
        iprop((((oW).slice (Rect.unit (s := S1600000) off S3200.size p) (fun _ => rfl)).view.loc (thr d L)
              ↦[((oW).slice (Rect.unit (s := S1600000) off S3200.size p) (fun _ => rfl)).view.set]{fullShare} f)
          ∗ ((stg a).view.loc (thr d L) ↦[(stg a).view.set]{fullShare} g))
        ∗ (a.view.loc (thr d L) ↦[Finset.univ \ (stg a).view.set]{fullShare} g)) : sProp 𝕄)
      ⊢ outSlot (F := F) d L a sm (n + 2) := by
  rw [outSlot_pos (F := F) d L (m := n + 2) ⟨by omega, by simpa using v⟩]
  iintro ⟨%f, %g, H, R⟩
  have hD : (iprop((((oW).slice (Rect.unit (s := S1600000) off S3200.size p) (fun _ => rfl)).view.loc (thr d L)
              ↦[((oW).slice (Rect.unit (s := S1600000) off S3200.size p) (fun _ => rfl)).view.set]{fullShare} f)
          ∗ ((stg a).view.loc (thr d L) ↦[(stg a).view.set]{fullShare} g)) : sProp 𝕄)
      ⊢ iprop(oPiece (F := F) d L (n + 2 - 2) ∗ ((stg a).view.loc (thr d L) ↦[(stg a).view.set]{fullShare} g)) := by
    rw [Nat.add_sub_cancel]
    iintro ⟨H1, H2⟩
    isplitl [H1]
    · iexists f; iapply (Entails.of_eq (out_congr d L h p (out_inb L n) f)); iexact H1
    · iexact H2
  iexists g
  isplitl [H]
  · iapply (Transfers.Flight_mono countersEmb (thr d L) hD); iexact H
  · iexact R

/-! The pieces outside the slots, from one trip to the next. -/
def xCore (k : ℕ) : Finset ℕ := (Finset.range 18).filter fun n => n ≠ 2 * k ∧ n ≠ 2 * k + 1 ∧ n ≠ 2 * k + 2 ∧ n ≠ 2 * k + 3
def oCore (k : ℕ) : Finset ℕ := (Finset.range 18).filter fun n => n + 2 ≠ 2 * k ∧ n + 2 ≠ 2 * k + 1 ∧ n ≠ 2 * k ∧ n ≠ 2 * k + 1

omit [FloatOps F] in
theorem xSet_out (Φ : ℕ → sProp 𝕄) (k : ℕ) (hk : k < 8) : bigSep (xSet k) Φ = iprop(Φ (2 * k + 2) ∗ Φ (2 * k + 3) ∗ bigSep (xCore k) Φ) := by
  have e : ((xSet k).erase (2 * k + 2)).erase (2 * k + 3) = xCore k := by
    ext n; simp only [xSet, xCore, Finset.mem_erase, Finset.mem_filter, Finset.mem_range]; omega
  rw [← e]; exact two_out (by simp only [xSet, Finset.mem_filter, Finset.mem_range]; omega) (by simp only [xSet, Finset.mem_filter, Finset.mem_range]; omega) (by omega)
omit [FloatOps F] in
theorem xSet_in (Φ : ℕ → sProp 𝕄) (k : ℕ) (hk : k < 8) : bigSep (xSet (k + 1)) Φ = iprop(Φ (2 * k) ∗ Φ (2 * k + 1) ∗ bigSep (xCore k) Φ) := by
  have e : ((xSet (k + 1)).erase (2 * k)).erase (2 * k + 1) = xCore k := by
    ext n; simp only [xSet, xCore, Finset.mem_erase, Finset.mem_filter, Finset.mem_range]; omega
  rw [← e]; exact two_out (by simp only [xSet, Finset.mem_filter, Finset.mem_range]; omega) (by simp only [xSet, Finset.mem_filter, Finset.mem_range]; omega) (by omega)
omit [FloatOps F] in
theorem oSet_out (Φ : ℕ → sProp 𝕄) (k : ℕ) (hk : k < 8) : bigSep (oSet k) Φ = iprop(Φ (2 * k) ∗ Φ (2 * k + 1) ∗ bigSep (oCore k) Φ) := by
  have e : ((oSet k).erase (2 * k)).erase (2 * k + 1) = oCore k := by
    ext n; simp only [oSet, oCore, Finset.mem_erase, Finset.mem_filter, Finset.mem_range]; omega
  rw [← e]; exact two_out (by simp only [oSet, Finset.mem_filter, Finset.mem_range]; omega) (by simp only [oSet, Finset.mem_filter, Finset.mem_range]; omega) (by omega)
omit [FloatOps F] in
theorem oSet_in (Φ : ℕ → sProp 𝕄) (k : ℕ) (hk : k < 8) (hk1 : 1 ≤ k) :
    bigSep (oSet (k + 1)) Φ = iprop(Φ (2 * k - 2) ∗ Φ (2 * k - 1) ∗ bigSep (oCore k) Φ) := by
  have e : ((oSet (k + 1)).erase (2 * k - 2)).erase (2 * k - 1) = oCore k := by
    ext n; simp only [oSet, oCore, Finset.mem_erase, Finset.mem_filter, Finset.mem_range]; omega
  rw [← e]; exact two_out (by simp only [oSet, Finset.mem_filter, Finset.mem_range]; omega) (by simp only [oSet, Finset.mem_filter, Finset.mem_range]; omega) (by omega)

theorem xP_pos {n : ℕ} (v : valid L n) : xP d L fx n = xtPiece d L fx n := if_pos v
theorem oP_pos {n : ℕ} (v : valid L n) : oP (F := F) d L n = oPiece (F := F) d L n := if_pos v
theorem xP_neg {n : ℕ} (v : ¬ valid L n) : xP d L fx n = iprop(emp) := if_neg v
theorem oP_neg {n : ℕ} (v : ¬ valid L n) : oP (F := F) d L n = iprop(emp) := if_neg v

/-- Piece `n` of the result at its final contents: row 2 of the transposed argument. -/
def oQ (n : ℕ) : sProp 𝕄 :=
  if valid L n then (outM L n).view.loc (thr d L) ↦[(outM L n).view.set]{fullShare} (Cert.Spec.row 2 fx) else iprop(emp)

/-- What a tile is handed for the call: its pieces of row 2 of the transposed argument, at the argument's contents, and
    its pieces of the result at some contents. What it hands back: the same pieces of the argument, and its pieces of
    the result holding the row. -/
def goRes : sProp 𝕄 := iprop(bigSep (Finset.range 18) (xP d L fx) ∗ bigSep (Finset.range 18) (oP (F := F) d L))
def tdRes : sProp 𝕄 := iprop(bigSep (Finset.range 18) (xP d L fx) ∗ bigSep (Finset.range 18) (oQ d L fx))

end Tile

end Cert.Proof.TileB2

end
-- ==== Proof.TileB3Defs.lean ====
/-
  One vector subcore's task of copy kernel 3 (counting from 0): definitions. The task moves its pieces of row 3 of the
  transposed argument (pieces of 3200 consecutive elements, piece number 2·s + c + 32·n for the subcore (c, s) and
  n = 0, 1, … while that number is below 500) into the flat result: each piece is fetched into a staging row, copied
  16 lanes at a time into a flat staging buffer, and written out, two pieces in flight at a time. Here: the pieces as
  memrefs, the program's own spellings of them, the printed conditions as facts about the trip, the two slots' states
  between trips, and what the tile holds outside the slots.
-/
import proofs.«206869_g37898791420194_cont_8to1_b_558_20_alg».proof.Defs
import Idealize.ShloMosaic.Lib.SparseCore.Launch
import Idealize.ShloMosaic.Lib.StableHlo.Run
import Idealize.ShloMosaic.Lib.Pipeline.Kit
import Idealize.ShloMosaic.Lib.Tactic
import proofs.«206869_g37898791420194_cont_8to1_b_558_20_alg».proof.Proof.Gen.Kernel
import proofs.«206869_g37898791420194_cont_8to1_b_558_20_alg».proof.Proof.Gen.Kernel.Skeleton
import proofs.«206869_g37898791420194_cont_8to1_b_558_20_alg».proof.Proof.Spec

noncomputable section

namespace Cert.Proof.TileB3

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

abbrev ΛP : Labels := Pipeline.Sig Λ₀ (Fin 0) fun p => (pcfgs (F := F) p).Adm
abbrev K : SparseCore.Cfg τ sig (ΛP (F := F)) 22 := sc (F := F)
abbrev 𝒱₀ : Variants := Variants.none

abbrev UH : Type := URounds (GSem nD τ sig) ℕ
abbrev UU : Type := UH × Counters

local notation "𝕄" => MT nD τ sig (HIx 22) (Elt F) ℕ UU ℕ

local notation "xtW" => (Memref.whole Cert.Kernel.main_v0_scv : Memref Cert.Kernel.sig Kind.scVector Space.hbm Cert.Kernel.S22x1600000 EltTy.f32)
local notation "oW" => (Memref.whole Cert.Kernel.main_v4_scv : Memref Cert.Kernel.sig Kind.scVector Space.hbm Cert.Kernel.S1600000 EltTy.f32)
local notation "a4" => (Memref.whole Cert.Kernel.cc3_scratch0 : Memref Cert.Kernel.sig Kind.scVector Space.vmem Cert.Kernel.S8x3200 EltTy.f32)
local notation "a5" => (Memref.whole Cert.Kernel.cc3_scratch1 : Memref Cert.Kernel.sig Kind.scVector Space.vmem Cert.Kernel.S8x3200 EltTy.f32)
local notation "a6" => (Memref.whole Cert.Kernel.cc3_scratch2 : Memref Cert.Kernel.sig Kind.scVector Space.vmem Cert.Kernel.S25600 EltTy.f32)
local notation "a7" => (Memref.whole Cert.Kernel.cc3_scratch3 : Memref Cert.Kernel.sig Kind.scVector Space.vmem Cert.Kernel.S25600 EltTy.f32)

variable [FloatOps F]

section Tile

variable (d : Dev nD) (L : grid3.Coords)

abbrev cV (L : grid3.Coords) : Fin τ.nSC := (L 0).castLE hcore3
abbrev jV (L : grid3.Coords) : Fin τ.nSub := (L 1).castLE hsub3
abbrev thr (d : Dev nD) (L : grid3.Coords) : Thread nD τ := V d (cV L) (jV L)

/-- The tile's number 2·s + c, and whether it has sixteen pieces (numbers below 20) or fifteen. -/
abbrev wid (L : grid3.Coords) : ℕ := 2 * (L 1).val + (L 0).val
abbrev big (L : grid3.Coords) : Prop := wid L < 20

omit [FloatOps F] in
theorem wid_lt (L : grid3.Coords) : wid L < 32 := by
  have h0 : (L 0).val < 2 := (L 0).isLt
  have h1 : (L 1).val < 16 := (L 1).isLt
  unfold wid; omega

/-- Piece `n` of the tile exists: `n < 15`, or `n = 15` on a tile with sixteen pieces. It is the piece number
    `wid + 32·n < 500` of the row. -/
def valid (L : grid3.Coords) (n : ℕ) : Prop := n < 15 ∨ (n = 15 ∧ big L)
instance (L : grid3.Coords) (n : ℕ) : Decidable (valid L n) := by unfold valid big; infer_instance

omit [FloatOps F] in
theorem valid_iff (L : grid3.Coords) (n : ℕ) : valid L n ↔ wid L + 32 * n < 500 := by
  have := wid_lt L; unfold valid big; omega

/-- Where piece `n` starts in the row (clamped to the last piece of the row, so that the rectangle is in bounds for
    every `n`; for a valid piece the clamp is idle). -/
abbrev pos (L : grid3.Coords) (n : ℕ) : ℕ := 3200 * min (wid L + 32 * n) 499

omit [FloatOps F] in
theorem pos_valid {L : grid3.Coords} {n : ℕ} (h : valid L n) : pos L n = 6400 * (L 1).val + 3200 * (L 0).val + 102400 * n := by
  have := (valid_iff L n).mp h; unfold pos wid at *; omega

omit [FloatOps F] in
theorem in_inb (L : grid3.Coords) (n : ℕ) : ∀ a, (![3, pos L n] : Fin 2 → ℕ) a + S1x3200.size a ≤ S22x1600000.size a := by
  intro a; fin_cases a
  · show 3 + 1 ≤ 22; omega
  · show pos L n + 3200 ≤ 1600000; unfold pos; omega
omit [FloatOps F] in
theorem out_inb (L : grid3.Coords) (n : ℕ) : ∀ a, (![pos L n] : Fin 1 → ℕ) a + S3200.size a ≤ S1600000.size a := by
  intro a; fin_cases a
  show pos L n + 3200 ≤ 1600000; unfold pos; omega

/-- Piece `n` of row 3 of the transposed argument, and piece `n` of the flat result, as memrefs of the tile. -/
abbrev inM (L : grid3.Coords) (n : ℕ) : Memref sig .scVector .hbm S1x3200 .f32 :=
  (xtW).slice (Rect.unit (s := S22x1600000) ![3, pos L n] S1x3200.size (in_inb L n)) (fun _ => rfl)
abbrev outM (L : grid3.Coords) (n : ℕ) : Memref sig .scVector .hbm S3200 .f32 :=
  (oW).slice (Rect.unit (s := S1600000) ![pos L n] S3200.size (out_inb L n)) (fun _ => rfl)

/-! The program's own slices are these pieces: by the closed forms of its offset functions. -/

omit [FloatOps F] in
theorem off2 {a b : ℕ} (h : a = b) : (![3, a] : Fin 2 → ℕ) = ![3, b] := by rw [h]
omit [FloatOps F] in
theorem off1' {a b : ℕ} (h : a = b) : (![a] : Fin 1 → ℕ) = ![b] := by rw [h]

omit [FloatOps F] in
theorem off_in0 (L : grid3.Coords) (h : valid L 0) : k3_off1 L 0#32 = ![3, pos L 0] :=
  (k3_off1_eq L 0).trans (off2 (by rw [pos_valid h]; simp))
omit [FloatOps F] in
theorem off_in1 (L : grid3.Coords) (h : valid L 1) : k3_off1 L 32#32 = ![3, pos L 1] :=
  (k3_off1_eq L 1).trans (off2 (by rw [pos_valid h]; simp))
omit [FloatOps F] in
theorem off_6 (L : grid3.Coords) (t : Fin k3_t1_loop.trips) (h : valid L (2 * t.val + 2)) : k3_off6 L t = ![3, pos L (2 * t.val + 2)] :=
  (k3_off6_eq L t).trans (off2 (by rw [pos_valid h]; omega))
omit [FloatOps F] in
theorem off_11 (L : grid3.Coords) (t : Fin k3_t1_loop.trips) (h : valid L (2 * t.val + 3)) : k3_off11 L t = ![3, pos L (2 * t.val + 3)] :=
  (k3_off11_eq L t).trans (off2 (by rw [pos_valid h]; omega))
omit [FloatOps F] in
theorem off_5 (L : grid3.Coords) (t : Fin k3_t1_loop.trips) (h : valid L (2 * t.val)) : k3_off5 L t = ![pos L (2 * t.val)] :=
  (k3_off5_eq L t).trans (off1' (by rw [pos_valid h]; omega))
omit [FloatOps F] in
theorem off_10 (L : grid3.Coords) (t : Fin k3_t1_loop.trips) (h : valid L (2 * t.val + 1)) : k3_off10 L t = ![pos L (2 * t.val + 1)] :=
  (k3_off10_eq L t).trans (off1' (by rw [pos_valid h]; omega))

/-- Holding a 1 × 3200 window of the transposed argument, or a 3200 window of the result, by exactly its elements
    says the same whichever way the window's offsets are spelt. -/
theorem in_congr {off off' : Fin 2 → ℕ} (h : off = off') (p : ∀ a, off a + S1x3200.size a ≤ S22x1600000.size a)
    (p' : ∀ a, off' a + S1x3200.size a ≤ S22x1600000.size a) (f : Buf (Elt F) ((xtW).view.loc (thr d L))) :
    (((xtW).slice (Rect.unit (s := S22x1600000) off S1x3200.size p) (fun _ => rfl)).view.loc (thr d L)
        ↦[((xtW).slice (Rect.unit (s := S22x1600000) off S1x3200.size p) (fun _ => rfl)).view.set]{fullShare} f : sProp 𝕄)
      = (((xtW).slice (Rect.unit (s := S22x1600000) off' S1x3200.size p') (fun _ => rfl)).view.loc (thr d L)
        ↦[((xtW).slice (Rect.unit (s := S22x1600000) off' S1x3200.size p') (fun _ => rfl)).view.set]{fullShare} f) := by
  subst h; rfl
theorem out_congr {off off' : Fin 1 → ℕ} (h : off = off') (p : ∀ a, off a + S3200.size a ≤ S1600000.size a)
    (p' : ∀ a, off' a + S3200.size a ≤ S1600000.size a) (f : Buf (Elt F) ((oW).view.loc (thr d L))) :
    (((oW).slice (Rect.unit (s := S1600000) off S3200.size p) (fun _ => rfl)).view.loc (thr d L)
        ↦[((oW).slice (Rect.unit (s := S1600000) off S3200.size p) (fun _ => rfl)).view.set]{fullShare} f : sProp 𝕄)
      = (((oW).slice (Rect.unit (s := S1600000) off' S3200.size p') (fun _ => rfl)).view.loc (thr d L)
        ↦[((oW).slice (Rect.unit (s := S1600000) off' S3200.size p') (fun _ => rfl)).view.set]{fullShare} f) := by
  subst h; rfl

/-! The printed conditions, as facts about the trip and the tile. -/

omit [FloatOps F] in
theorem trips1 : k3_t1_loop.trips = 8 := by decide
omit [FloatOps F] in
theorem cond1_iff : ∀ (t : Fin k3_t1_loop.trips), k3_cond1 t = 1#1 ↔ 1 ≤ t.val := by decide +kernel
omit [FloatOps F] in
theorem cond2_iff : ∀ (L : grid3.Coords) (t : Fin k3_t1_loop.trips), k3_cond2 L t = 1#1 := by decide +kernel
omit [FloatOps F] in
theorem cond3_iff : ∀ (L : grid3.Coords) (t : Fin k3_t1_loop.trips), k3_cond3 L t = 1#1 ↔ t.val ≤ 6 := by decide +kernel
omit [FloatOps F] in
theorem cond4_iff : ∀ (t : Fin k3_t1_loop.trips), k3_cond4 t = 1#1 ↔ 1 ≤ t.val := by decide +kernel
omit [FloatOps F] in
theorem cond5_iff : ∀ (L : grid3.Coords) (t : Fin k3_t1_loop.trips), k3_cond5 L t = 1#1 ↔ (t.val ≤ 6 ∨ big L) := by decide +kernel
omit [FloatOps F] in
theorem cond6_iff : ∀ (L : grid3.Coords) (t : Fin k3_t1_loop.trips), k3_cond6 L t = 1#1 ↔ (t.val ≤ 5 ∨ (t.val = 6 ∧ big L)) := by decide +kernel
omit [FloatOps F] in
theorem cond7_iff : ∀ (L : grid3.Coords), k3_cond7 L = 1#1 := by decide +kernel
omit [FloatOps F] in
theorem cond8_iff : ∀ (L : grid3.Coords), k3_cond8 L = 1#1 ↔ big L := by decide +kernel

variable (O : CellTallies nD τ sig (HIx 22)) (W : Waits sig (HIx 22))
variable (fx : Buf (Elt F) ((xtW).view.loc (thr d L)))

abbrev NN : ℕ := 102400

/-- The 3200-element window of a flat staging buffer that a piece is written out from. -/
abbrev stg (a : Memref sig .scVector .vmem S25600 .f32) : Memref sig .scVector .vmem S3200 .f32 :=
  a.slice (Rect.unit (s := S25600) ![0] S3200.size inb_S25600_S3200_0) (fun _ => rfl)

/-- Piece `n` of the argument row held by exactly its elements, at the argument's contents; piece `n` of the result
    held by exactly its elements, at some contents. -/
abbrev xtPiece (n : ℕ) : sProp 𝕄 := (inM L n).view.loc (thr d L) ↦[(inM L n).view.set]{fullShare} fx
abbrev oPiece (n : ℕ) : sProp 𝕄 := iprop(∃ f, (outM L n).view.loc (thr d L) ↦[(outM L n).view.set]{fullShare} f)

/-- The lane-copy loop of a slot: the staging row keeps its contents, the flat staging buffer holds some contents. -/
def laneInv0 (g4 : Buf (Elt F) ((a4).view.loc (thr d L))) (_ : ℕ) (_ : PUnit) : sProp 𝕄 :=
  iprop(((a4).view.loc (thr d L) ↦{fullShare} g4) ∗ (∃ g, (a6).view.loc (thr d L) ↦{fullShare} g))
def laneInv1 (g5 : Buf (Elt F) ((a5).view.loc (thr d L))) (_ : ℕ) (_ : PUnit) : sProp 𝕄 :=
  iprop(((a5).view.loc (thr d L) ↦{fullShare} g5) ∗ (∃ g, (a7).view.loc (thr d L) ↦{fullShare} g))

/-- A fetch slot before trip work on piece `n`: the piece's fetch in flight (it will hand back the staging row at some
    contents, and the piece), or, when there is no such piece, the slot idle. -/
def inSlot (a : Memref sig .scVector .vmem S8x3200 .f32) (sm : DmaSem sig) (n : ℕ) : sProp 𝕄 :=
  if valid L n then
    iprop(∃ g, Transfers.Flight countersEmb (thr d L) (SemLoc.dma sm) (default : HIx 22) NN
      iprop((a.view.loc (thr d L) ↦{fullShare} g) ∗ xtPiece d L fx n))
  else iprop((∃ g, a.view.loc (thr d L) ↦{fullShare} g) ∗ semVal (thr d L, SemLoc.dma sm) 0)

/-- A write-out slot before trip work on piece `m`: piece `m - 2`'s write-out in flight (it will hand back that piece
    of the result at some contents, and the staging window), the rest of the staging buffer beside it; or idle. -/
def outSlot (a : Memref sig .scVector .vmem S25600 .f32) (sm : DmaSem sig) (m : ℕ) : sProp 𝕄 :=
  if 2 ≤ m ∧ valid L (m - 2) then
    iprop(∃ g, Transfers.Flight countersEmb (thr d L) (SemLoc.dma sm) (default : HIx 22) NN
        iprop(oPiece d L (m - 2) ∗ ((stg a).view.loc (thr d L) ↦[(stg a).view.set]{fullShare} g))
      ∗ (a.view.loc (thr d L) ↦[Finset.univ \ (stg a).view.set]{fullShare} g))
  else iprop((∃ g, a.view.loc (thr d L) ↦{fullShare} g) ∗ semVal (thr d L, SemLoc.dma sm) 0)

/-- Piece `n` when it exists, nothing otherwise. -/
def xP (n : ℕ) : sProp 𝕄 := if valid L n then xtPiece d L fx n else iprop(emp)
def oP (n : ℕ) : sProp 𝕄 := if valid L n then oPiece d L n else iprop(emp)

/-- What the tile holds outside the slots before trip `t`: every piece of the argument row but those being fetched
    (`2t`, `2t + 1`), every piece of the result but those being written out (`2t - 2`, `2t - 1`). -/
def xSet (t : ℕ) : Finset ℕ := (Finset.range 18).filter fun n => n ≠ 2 * t ∧ n ≠ 2 * t + 1
def oSet (t : ℕ) : Finset ℕ := (Finset.range 18).filter fun n => n + 2 ≠ 2 * t ∧ n + 2 ≠ 2 * t + 1

def inv (t : ℕ) (_ : PUnit) : sProp 𝕄 :=
  iprop(Transfers.MayWaits (thr d L) (none : HIx 22) O
    ∗ (∃ W', ⌜∀ p ∈ W', p ∈ W ∨ p.2 = none⌝ ∗ owes (thr d L) O W')
    ∗ bigSep (xSet t) (xP d L fx) ∗ bigSep (oSet t) (oP d L)
    ∗ inSlot d L fx a4 cc3_scratch4.sem (2 * t) ∗ outSlot d L a6 cc3_scratch6.sem (2 * t)
    ∗ inSlot d L fx a5 cc3_scratch5.sem (2 * t + 1) ∗ outSlot d L a7 cc3_scratch7.sem (2 * t + 1))

omit [FloatOps F] in
theorem two_out {Φ : ℕ → sProp 𝕄} {s : Finset ℕ} {a b : ℕ} (ha : a ∈ s) (hb : b ∈ s) (hab : a ≠ b) :
    bigSep s Φ = iprop(Φ a ∗ Φ b ∗ bigSep ((s.erase a).erase b) Φ) := by
  rw [SparseCore.bigSep_erase' ha, SparseCore.bigSep_erase' (Finset.mem_erase.mpr ⟨fun e => hab e.symm, hb⟩)]

omit [FloatOps F] in
theorem range18_split : (Finset.range 18) = insert 0 (insert 1 (xSet 0)) := by decide

theorem xRange_split (v0 : valid L 0) (v1 : valid L 1) :
    bigSep (Finset.range 18) (xP d L fx) = iprop(xtPiece d L fx 0 ∗ xtPiece d L fx 1 ∗ bigSep (xSet 0) (xP d L fx)) := by
  rw [range18_split, SparseCore.bigSep_insert' (by decide), SparseCore.bigSep_insert' (by decide)]
  unfold xP; rw [if_pos v0, if_pos v1]
omit [FloatOps F] in
theorem oSet_zero : oSet 0 = Finset.range 18 := by decide

theorem inSlot_pos {a : Memref sig .scVector .vmem S8x3200 .f32} {sm : DmaSem sig} {n : ℕ} (v : valid L n) :
    inSlot d L fx a sm n = iprop(∃ g, Transfers.Flight countersEmb (thr d L) (SemLoc.dma sm) (default : HIx 22) NN
      iprop((a.view.loc (thr d L) ↦{fullShare} g) ∗ xtPiece d L fx n)) := by unfold inSlot; rw [if_pos v]
theorem inSlot_neg {a : Memref sig .scVector .vmem S8x3200 .f32} {sm : DmaSem sig} {n : ℕ} (v : ¬ valid L n) :
    inSlot d L fx a sm n = iprop((∃ g, a.view.loc (thr d L) ↦{fullShare} g) ∗ semVal (thr d L, SemLoc.dma sm) 0) := by
  unfold inSlot; rw [if_neg v]
theorem outSlot_pos {a : Memref sig .scVector .vmem S25600 .f32} {sm : DmaSem sig} {m : ℕ} (h : 2 ≤ m ∧ valid L (m - 2)) :
    outSlot (F := F) d L a sm m = iprop(∃ g, Transfers.Flight countersEmb (thr d L) (SemLoc.dma sm) (default : HIx 22) NN
        iprop(oPiece (F := F) d L (m - 2) ∗ ((stg a).view.loc (thr d L) ↦[(stg a).view.set]{fullShare} g))
      ∗ (a.view.loc (thr d L) ↦[Finset.univ \ (stg a).view.set]{fullShare} g)) := by unfold outSlot; rw [if_pos h]
theorem outSlot_neg {a : Memref sig .scVector .vmem S25600 .f32} {sm : DmaSem sig} {m : ℕ} (h : ¬ (2 ≤ m ∧ valid L (m - 2))) :
    outSlot (F := F) d L a sm m = iprop((∃ g, a.view.loc (thr d L) ↦{fullShare} g) ∗ semVal (thr d L, SemLoc.dma sm) 0) := by
  unfold outSlot; rw [if_neg h]

/-- A fetch in flight, its source window spelt by any offsets equal to piece `n`'s, fills the fetch slot for `n`. -/
theorem fl_in {off : Fin 2 → ℕ} {n : ℕ} (h : off = ![3, pos L n]) (p : ∀ a, off a + S1x3200.size a ≤ S22x1600000.size a) (v : valid L n)
    (a : Memref sig .scVector .vmem S8x3200 .f32) (sm : DmaSem sig) :
    (iprop(∃ g, Transfers.Flight countersEmb (thr d L) (SemLoc.dma sm) (default : HIx 22) NN
        iprop((a.view.loc (thr d L) ↦{fullShare} g)
          ∗ (((xtW).slice (Rect.unit (s := S22x1600000) off S1x3200.size p) (fun _ => rfl)).view.loc (thr d L)
              ↦[((xtW).slice (Rect.unit (s := S22x1600000) off S1x3200.size p) (fun _ => rfl)).view.set]{fullShare} fx))) : sProp 𝕄)
      ⊢ inSlot d L fx a sm n := by
  rw [inSlot_pos d L fx v]
  iintro ⟨%g, H⟩
  have hD : (iprop((a.view.loc (thr d L) ↦{fullShare} g)
          ∗ (((xtW).slice (Rect.unit (s := S22x1600000) off S1x3200.size p) (fun _ => rfl)).view.loc (thr d L)
              ↦[((xtW).slice (Rect.unit (s := S22x1600000) off S1x3200.size p) (fun _ => rfl)).view.set]{fullShare} fx)) : sProp 𝕄)
      ⊢ iprop((a.view.loc (thr d L) ↦{fullShare} g) ∗ xtPiece d L fx n) := by
    iintro ⟨H1, H2⟩
    isplitl [H1]; · iexact H1
    iapply (Entails.of_eq (in_congr d L h p (in_inb L n) fx)); iexact H2
  iexists g
  iapply (Transfers.Flight_mono countersEmb (thr d L) hD); iexact H

/-- A write-out in flight, its destination window spelt by any offsets equal to piece `n`'s, with the rest of the
    staging buffer, fills the write-out slot for `n + 2`. -/
theorem fl_out {off : Fin 1 → ℕ} {n : ℕ} (h : off = ![pos L n]) (p : ∀ a, off a + S3200.size a ≤ S1600000.size a) (v : valid L n)
    (a : Memref sig .scVector .vmem S25600 .f32) (sm : DmaSem sig) :
    (iprop(∃ (f : Buf (Elt F) ((oW).view.loc (thr d L))) (g : Buf (Elt F) (a.view.loc (thr d L))), Transfers.Flight countersEmb (thr d L) (SemLoc.dma sm) (default : HIx 22) NN
        iprop((((oW).slice (Rect.unit (s := S1600000) off S3200.size p) (fun _ => rfl)).view.loc (thr d L)
              ↦[((oW).slice (Rect.unit (s := S1600000) off S3200.size p) (fun _ => rfl)).view.set]{fullShare} f)
          ∗ ((stg a).view.loc (thr d L) ↦[(stg a).view.set]{fullShare} g))
        ∗ (a.view.loc (thr d L) ↦[Finset.univ \ (stg a).view.set]{fullShare} g)) : sProp 𝕄)
      ⊢ outSlot (F := F) d L a sm (n + 2) := by
  rw [outSlot_pos (F := F) d L (m := n + 2) ⟨by omega, by simpa using v⟩]
  iintro ⟨%f, %g, H, R⟩
  have hD : (iprop((((oW).slice (Rect.unit (s := S1600000) off S3200.size p) (fun _ => rfl)).view.loc (thr d L)
              ↦[((oW).slice (Rect.unit (s := S1600000) off S3200.size p) (fun _ => rfl)).view.set]{fullShare} f)
          ∗ ((stg a).view.loc (thr d L) ↦[(stg a).view.set]{fullShare} g)) : sProp 𝕄)
      ⊢ iprop(oPiece (F := F) d L (n + 2 - 2) ∗ ((stg a).view.loc (thr d L) ↦[(stg a).view.set]{fullShare} g)) := by
    rw [Nat.add_sub_cancel]
    iintro ⟨H1, H2⟩
    isplitl [H1]
    · iexists f; iapply (Entails.of_eq (out_congr d L h p (out_inb L n) f)); iexact H1
    · iexact H2
  iexists g
  isplitl [H]
  · iapply (Transfers.Flight_mono countersEmb (thr d L) hD); iexact H
  · iexact R

/-! The pieces outside the slots, from one trip to the next. -/
def xCore (k : ℕ) : Finset ℕ := (Finset.range 18).filter fun n => n ≠ 2 * k ∧ n ≠ 2 * k + 1 ∧ n ≠ 2 * k + 2 ∧ n ≠ 2 * k + 3
def oCore (k : ℕ) : Finset ℕ := (Finset.range 18).filter fun n => n + 2 ≠ 2 * k ∧ n + 2 ≠ 2 * k + 1 ∧ n ≠ 2 * k ∧ n ≠ 2 * k + 1

omit [FloatOps F] in
theorem xSet_out (Φ : ℕ → sProp 𝕄) (k : ℕ) (hk : k < 8) : bigSep (xSet k) Φ = iprop(Φ (2 * k + 2) ∗ Φ (2 * k + 3) ∗ bigSep (xCore k) Φ) := by
  have e : ((xSet k).erase (2 * k + 2)).erase (2 * k + 3) = xCore k := by
    ext n; simp only [xSet, xCore, Finset.mem_erase, Finset.mem_filter, Finset.mem_range]; omega
  rw [← e]; exact two_out (by simp only [xSet, Finset.mem_filter, Finset.mem_range]; omega) (by simp only [xSet, Finset.mem_filter, Finset.mem_range]; omega) (by omega)
omit [FloatOps F] in
theorem xSet_in (Φ : ℕ → sProp 𝕄) (k : ℕ) (hk : k < 8) : bigSep (xSet (k + 1)) Φ = iprop(Φ (2 * k) ∗ Φ (2 * k + 1) ∗ bigSep (xCore k) Φ) := by
  have e : ((xSet (k + 1)).erase (2 * k)).erase (2 * k + 1) = xCore k := by
    ext n; simp only [xSet, xCore, Finset.mem_erase, Finset.mem_filter, Finset.mem_range]; omega
  rw [← e]; exact two_out (by simp only [xSet, Finset.mem_filter, Finset.mem_range]; omega) (by simp only [xSet, Finset.mem_filter, Finset.mem_range]; omega) (by omega)
omit [FloatOps F] in
theorem oSet_out (Φ : ℕ → sProp 𝕄) (k : ℕ) (hk : k < 8) : bigSep (oSet k) Φ = iprop(Φ (2 * k) ∗ Φ (2 * k + 1) ∗ bigSep (oCore k) Φ) := by
  have e : ((oSet k).erase (2 * k)).erase (2 * k + 1) = oCore k := by
    ext n; simp only [oSet, oCore, Finset.mem_erase, Finset.mem_filter, Finset.mem_range]; omega
  rw [← e]; exact two_out (by simp only [oSet, Finset.mem_filter, Finset.mem_range]; omega) (by simp only [oSet, Finset.mem_filter, Finset.mem_range]; omega) (by omega)
omit [FloatOps F] in
theorem oSet_in (Φ : ℕ → sProp 𝕄) (k : ℕ) (hk : k < 8) (hk1 : 1 ≤ k) :
    bigSep (oSet (k + 1)) Φ = iprop(Φ (2 * k - 2) ∗ Φ (2 * k - 1) ∗ bigSep (oCore k) Φ) := by
  have e : ((oSet (k + 1)).erase (2 * k - 2)).erase (2 * k - 1) = oCore k := by
    ext n; simp only [oSet, oCore, Finset.mem_erase, Finset.mem_filter, Finset.mem_range]; omega
  rw [← e]; exact two_out (by simp only [oSet, Finset.mem_filter, Finset.mem_range]; omega) (by simp only [oSet, Finset.mem_filter, Finset.mem_range]; omega) (by omega)

theorem xP_pos {n : ℕ} (v : valid L n) : xP d L fx n = xtPiece d L fx n := if_pos v
theorem oP_pos {n : ℕ} (v : valid L n) : oP (F := F) d L n = oPiece (F := F) d L n := if_pos v
theorem xP_neg {n : ℕ} (v : ¬ valid L n) : xP d L fx n = iprop(emp) := if_neg v
theorem oP_neg {n : ℕ} (v : ¬ valid L n) : oP (F := F) d L n = iprop(emp) := if_neg v

/-- Piece `n` of the result at its final contents: row 3 of the transposed argument. -/
def oQ (n : ℕ) : sProp 𝕄 :=
  if valid L n then (outM L n).view.loc (thr d L) ↦[(outM L n).view.set]{fullShare} (Cert.Spec.row 3 fx) else iprop(emp)

/-- What a tile is handed for the call: its pieces of row 3 of the transposed argument, at the argument's contents, and
    its pieces of the result at some contents. What it hands back: the same pieces of the argument, and its pieces of
    the result holding the row. -/
def goRes : sProp 𝕄 := iprop(bigSep (Finset.range 18) (xP d L fx) ∗ bigSep (Finset.range 18) (oP (F := F) d L))
def tdRes : sProp 𝕄 := iprop(bigSep (Finset.range 18) (xP d L fx) ∗ bigSep (Finset.range 18) (oQ d L fx))

end Tile

end Cert.Proof.TileB3

end
-- ==== Proof.TileB4Defs.lean ====
/-
  One vector subcore's task of copy kernel 4 (counting from 0): definitions. The task moves its pieces of row 4 of the
  transposed argument (pieces of 3200 consecutive elements, piece number 2·s + c + 32·n for the subcore (c, s) and
  n = 0, 1, … while that number is below 500) into the flat result: each piece is fetched into a staging row, copied
  16 lanes at a time into a flat staging buffer, and written out, two pieces in flight at a time. Here: the pieces as
  memrefs, the program's own spellings of them, the printed conditions as facts about the trip, the two slots' states
  between trips, and what the tile holds outside the slots.
-/
import proofs.«206869_g37898791420194_cont_8to1_b_558_20_alg».proof.Defs
import Idealize.ShloMosaic.Lib.SparseCore.Launch
import Idealize.ShloMosaic.Lib.StableHlo.Run
import Idealize.ShloMosaic.Lib.Pipeline.Kit
import Idealize.ShloMosaic.Lib.Tactic
import proofs.«206869_g37898791420194_cont_8to1_b_558_20_alg».proof.Proof.Gen.Kernel
import proofs.«206869_g37898791420194_cont_8to1_b_558_20_alg».proof.Proof.Gen.Kernel.Skeleton
import proofs.«206869_g37898791420194_cont_8to1_b_558_20_alg».proof.Proof.Spec

noncomputable section

namespace Cert.Proof.TileB4

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

abbrev ΛP : Labels := Pipeline.Sig Λ₀ (Fin 0) fun p => (pcfgs (F := F) p).Adm
abbrev K : SparseCore.Cfg τ sig (ΛP (F := F)) 22 := sc (F := F)
abbrev 𝒱₀ : Variants := Variants.none

abbrev UH : Type := URounds (GSem nD τ sig) ℕ
abbrev UU : Type := UH × Counters

local notation "𝕄" => MT nD τ sig (HIx 22) (Elt F) ℕ UU ℕ

local notation "xtW" => (Memref.whole Cert.Kernel.main_v0_scv : Memref Cert.Kernel.sig Kind.scVector Space.hbm Cert.Kernel.S22x1600000 EltTy.f32)
local notation "oW" => (Memref.whole Cert.Kernel.main_v5_scv : Memref Cert.Kernel.sig Kind.scVector Space.hbm Cert.Kernel.S1600000 EltTy.f32)
local notation "a4" => (Memref.whole Cert.Kernel.cc4_scratch0 : Memref Cert.Kernel.sig Kind.scVector Space.vmem Cert.Kernel.S8x3200 EltTy.f32)
local notation "a5" => (Memref.whole Cert.Kernel.cc4_scratch1 : Memref Cert.Kernel.sig Kind.scVector Space.vmem Cert.Kernel.S8x3200 EltTy.f32)
local notation "a6" => (Memref.whole Cert.Kernel.cc4_scratch2 : Memref Cert.Kernel.sig Kind.scVector Space.vmem Cert.Kernel.S25600 EltTy.f32)
local notation "a7" => (Memref.whole Cert.Kernel.cc4_scratch3 : Memref Cert.Kernel.sig Kind.scVector Space.vmem Cert.Kernel.S25600 EltTy.f32)

variable [FloatOps F]

section Tile

variable (d : Dev nD) (L : grid4.Coords)

abbrev cV (L : grid4.Coords) : Fin τ.nSC := (L 0).castLE hcore4
abbrev jV (L : grid4.Coords) : Fin τ.nSub := (L 1).castLE hsub4
abbrev thr (d : Dev nD) (L : grid4.Coords) : Thread nD τ := V d (cV L) (jV L)

/-- The tile's number 2·s + c, and whether it has sixteen pieces (numbers below 20) or fifteen. -/
abbrev wid (L : grid4.Coords) : ℕ := 2 * (L 1).val + (L 0).val
abbrev big (L : grid4.Coords) : Prop := wid L < 20

omit [FloatOps F] in
theorem wid_lt (L : grid4.Coords) : wid L < 32 := by
  have h0 : (L 0).val < 2 := (L 0).isLt
  have h1 : (L 1).val < 16 := (L 1).isLt
  unfold wid; omega

/-- Piece `n` of the tile exists: `n < 15`, or `n = 15` on a tile with sixteen pieces. It is the piece number
    `wid + 32·n < 500` of the row. -/
def valid (L : grid4.Coords) (n : ℕ) : Prop := n < 15 ∨ (n = 15 ∧ big L)
instance (L : grid4.Coords) (n : ℕ) : Decidable (valid L n) := by unfold valid big; infer_instance

omit [FloatOps F] in
theorem valid_iff (L : grid4.Coords) (n : ℕ) : valid L n ↔ wid L + 32 * n < 500 := by
  have := wid_lt L; unfold valid big; omega

/-- Where piece `n` starts in the row (clamped to the last piece of the row, so that the rectangle is in bounds for
    every `n`; for a valid piece the clamp is idle). -/
abbrev pos (L : grid4.Coords) (n : ℕ) : ℕ := 3200 * min (wid L + 32 * n) 499

omit [FloatOps F] in
theorem pos_valid {L : grid4.Coords} {n : ℕ} (h : valid L n) : pos L n = 6400 * (L 1).val + 3200 * (L 0).val + 102400 * n := by
  have := (valid_iff L n).mp h; unfold pos wid at *; omega

omit [FloatOps F] in
theorem in_inb (L : grid4.Coords) (n : ℕ) : ∀ a, (![4, pos L n] : Fin 2 → ℕ) a + S1x3200.size a ≤ S22x1600000.size a := by
  intro a; fin_cases a
  · show 4 + 1 ≤ 22; omega
  · show pos L n + 3200 ≤ 1600000; unfold pos; omega
omit [FloatOps F] in
theorem out_inb (L : grid4.Coords) (n : ℕ) : ∀ a, (![pos L n] : Fin 1 → ℕ) a + S3200.size a ≤ S1600000.size a := by
  intro a; fin_cases a
  show pos L n + 3200 ≤ 1600000; unfold pos; omega

/-- Piece `n` of row 4 of the transposed argument, and piece `n` of the flat result, as memrefs of the tile. -/
abbrev inM (L : grid4.Coords) (n : ℕ) : Memref sig .scVector .hbm S1x3200 .f32 :=
  (xtW).slice (Rect.unit (s := S22x1600000) ![4, pos L n] S1x3200.size (in_inb L n)) (fun _ => rfl)
abbrev outM (L : grid4.Coords) (n : ℕ) : Memref sig .scVector .hbm S3200 .f32 :=
  (oW).slice (Rect.unit (s := S1600000) ![pos L n] S3200.size (out_inb L n)) (fun _ => rfl)

/-! The program's own slices are these pieces: by the closed forms of its offset functions. -/

omit [FloatOps F] in
theorem off2 {a b : ℕ} (h : a = b) : (![4, a] : Fin 2 → ℕ) = ![4, b] := by rw [h]
omit [FloatOps F] in
theorem off1' {a b : ℕ} (h : a = b) : (![a] : Fin 1 → ℕ) = ![b] := by rw [h]

omit [FloatOps F] in
theorem off_in0 (L : grid4.Coords) (h : valid L 0) : k4_off1 L 0#32 = ![4, pos L 0] :=
  (k4_off1_eq L 0).trans (off2 (by rw [pos_valid h]; simp))
omit [FloatOps F] in
theorem off_in1 (L : grid4.Coords) (h : valid L 1) : k4_off1 L 32#32 = ![4, pos L 1] :=
  (k4_off1_eq L 1).trans (off2 (by rw [pos_valid h]; simp))
omit [FloatOps F] in
theorem off_6 (L : grid4.Coords) (t : Fin k4_t1_loop.trips) (h : valid L (2 * t.val + 2)) : k4_off6 L t = ![4, pos L (2 * t.val + 2)] :=
  (k4_off6_eq L t).trans (off2 (by rw [pos_valid h]; omega))
omit [FloatOps F] in
theorem off_11 (L : grid4.Coords) (t : Fin k4_t1_loop.trips) (h : valid L (2 * t.val + 3)) : k4_off11 L t = ![4, pos L (2 * t.val + 3)] :=
  (k4_off11_eq L t).trans (off2 (by rw [pos_valid h]; omega))
omit [FloatOps F] in
theorem off_5 (L : grid4.Coords) (t : Fin k4_t1_loop.trips) (h : valid L (2 * t.val)) : k4_off5 L t = ![pos L (2 * t.val)] :=
  (k4_off5_eq L t).trans (off1' (by rw [pos_valid h]; omega))
omit [FloatOps F] in
theorem off_10 (L : grid4.Coords) (t : Fin k4_t1_loop.trips) (h : valid L (2 * t.val + 1)) : k4_off10 L t = ![pos L (2 * t.val + 1)] :=
  (k4_off10_eq L t).trans (off1' (by rw [pos_valid h]; omega))

/-- Holding a 1 × 3200 window of the transposed argument, or a 3200 window of the result, by exactly its elements
    says the same whichever way the window's offsets are spelt. -/
theorem in_congr {off off' : Fin 2 → ℕ} (h : off = off') (p : ∀ a, off a + S1x3200.size a ≤ S22x1600000.size a)
    (p' : ∀ a, off' a + S1x3200.size a ≤ S22x1600000.size a) (f : Buf (Elt F) ((xtW).view.loc (thr d L))) :
    (((xtW).slice (Rect.unit (s := S22x1600000) off S1x3200.size p) (fun _ => rfl)).view.loc (thr d L)
        ↦[((xtW).slice (Rect.unit (s := S22x1600000) off S1x3200.size p) (fun _ => rfl)).view.set]{fullShare} f : sProp 𝕄)
      = (((xtW).slice (Rect.unit (s := S22x1600000) off' S1x3200.size p') (fun _ => rfl)).view.loc (thr d L)
        ↦[((xtW).slice (Rect.unit (s := S22x1600000) off' S1x3200.size p') (fun _ => rfl)).view.set]{fullShare} f) := by
  subst h; rfl
theorem out_congr {off off' : Fin 1 → ℕ} (h : off = off') (p : ∀ a, off a + S3200.size a ≤ S1600000.size a)
    (p' : ∀ a, off' a + S3200.size a ≤ S1600000.size a) (f : Buf (Elt F) ((oW).view.loc (thr d L))) :
    (((oW).slice (Rect.unit (s := S1600000) off S3200.size p) (fun _ => rfl)).view.loc (thr d L)
        ↦[((oW).slice (Rect.unit (s := S1600000) off S3200.size p) (fun _ => rfl)).view.set]{fullShare} f : sProp 𝕄)
      = (((oW).slice (Rect.unit (s := S1600000) off' S3200.size p') (fun _ => rfl)).view.loc (thr d L)
        ↦[((oW).slice (Rect.unit (s := S1600000) off' S3200.size p') (fun _ => rfl)).view.set]{fullShare} f) := by
  subst h; rfl

/-! The printed conditions, as facts about the trip and the tile. -/

omit [FloatOps F] in
theorem trips1 : k4_t1_loop.trips = 8 := by decide
omit [FloatOps F] in
theorem cond1_iff : ∀ (t : Fin k4_t1_loop.trips), k4_cond1 t = 1#1 ↔ 1 ≤ t.val := by decide +kernel
omit [FloatOps F] in
theorem cond2_iff : ∀ (L : grid4.Coords) (t : Fin k4_t1_loop.trips), k4_cond2 L t = 1#1 := by decide +kernel
omit [FloatOps F] in
theorem cond3_iff : ∀ (L : grid4.Coords) (t : Fin k4_t1_loop.trips), k4_cond3 L t = 1#1 ↔ t.val ≤ 6 := by decide +kernel
omit [FloatOps F] in
theorem cond4_iff : ∀ (t : Fin k4_t1_loop.trips), k4_cond4 t = 1#1 ↔ 1 ≤ t.val := by decide +kernel
omit [FloatOps F] in
theorem cond5_iff : ∀ (L : grid4.Coords) (t : Fin k4_t1_loop.trips), k4_cond5 L t = 1#1 ↔ (t.val ≤ 6 ∨ big L) := by decide +kernel
omit [FloatOps F] in
theorem cond6_iff : ∀ (L : grid4.Coords) (t : Fin k4_t1_loop.trips), k4_cond6 L t = 1#1 ↔ (t.val ≤ 5 ∨ (t.val = 6 ∧ big L)) := by decide +kernel
omit [FloatOps F] in
theorem cond7_iff : ∀ (L : grid4.Coords), k4_cond7 L = 1#1 := by decide +kernel
omit [FloatOps F] in
theorem cond8_iff : ∀ (L : grid4.Coords), k4_cond8 L = 1#1 ↔ big L := by decide +kernel

variable (O : CellTallies nD τ sig (HIx 22)) (W : Waits sig (HIx 22))
variable (fx : Buf (Elt F) ((xtW).view.loc (thr d L)))

abbrev NN : ℕ := 102400

/-- The 3200-element window of a flat staging buffer that a piece is written out from. -/
abbrev stg (a : Memref sig .scVector .vmem S25600 .f32) : Memref sig .scVector .vmem S3200 .f32 :=
  a.slice (Rect.unit (s := S25600) ![0] S3200.size inb_S25600_S3200_0) (fun _ => rfl)

/-- Piece `n` of the argument row held by exactly its elements, at the argument's contents; piece `n` of the result
    held by exactly its elements, at some contents. -/
abbrev xtPiece (n : ℕ) : sProp 𝕄 := (inM L n).view.loc (thr d L) ↦[(inM L n).view.set]{fullShare} fx
abbrev oPiece (n : ℕ) : sProp 𝕄 := iprop(∃ f, (outM L n).view.loc (thr d L) ↦[(outM L n).view.set]{fullShare} f)

/-- The lane-copy loop of a slot: the staging row keeps its contents, the flat staging buffer holds some contents. -/
def laneInv0 (g4 : Buf (Elt F) ((a4).view.loc (thr d L))) (_ : ℕ) (_ : PUnit) : sProp 𝕄 :=
  iprop(((a4).view.loc (thr d L) ↦{fullShare} g4) ∗ (∃ g, (a6).view.loc (thr d L) ↦{fullShare} g))
def laneInv1 (g5 : Buf (Elt F) ((a5).view.loc (thr d L))) (_ : ℕ) (_ : PUnit) : sProp 𝕄 :=
  iprop(((a5).view.loc (thr d L) ↦{fullShare} g5) ∗ (∃ g, (a7).view.loc (thr d L) ↦{fullShare} g))

/-- A fetch slot before trip work on piece `n`: the piece's fetch in flight (it will hand back the staging row at some
    contents, and the piece), or, when there is no such piece, the slot idle. -/
def inSlot (a : Memref sig .scVector .vmem S8x3200 .f32) (sm : DmaSem sig) (n : ℕ) : sProp 𝕄 :=
  if valid L n then
    iprop(∃ g, Transfers.Flight countersEmb (thr d L) (SemLoc.dma sm) (default : HIx 22) NN
      iprop((a.view.loc (thr d L) ↦{fullShare} g) ∗ xtPiece d L fx n))
  else iprop((∃ g, a.view.loc (thr d L) ↦{fullShare} g) ∗ semVal (thr d L, SemLoc.dma sm) 0)

/-- A write-out slot before trip work on piece `m`: piece `m - 2`'s write-out in flight (it will hand back that piece
    of the result at some contents, and the staging window), the rest of the staging buffer beside it; or idle. -/
def outSlot (a : Memref sig .scVector .vmem S25600 .f32) (sm : DmaSem sig) (m : ℕ) : sProp 𝕄 :=
  if 2 ≤ m ∧ valid L (m - 2) then
    iprop(∃ g, Transfers.Flight countersEmb (thr d L) (SemLoc.dma sm) (default : HIx 22) NN
        iprop(oPiece d L (m - 2) ∗ ((stg a).view.loc (thr d L) ↦[(stg a).view.set]{fullShare} g))
      ∗ (a.view.loc (thr d L) ↦[Finset.univ \ (stg a).view.set]{fullShare} g))
  else iprop((∃ g, a.view.loc (thr d L) ↦{fullShare} g) ∗ semVal (thr d L, SemLoc.dma sm) 0)

/-- Piece `n` when it exists, nothing otherwise. -/
def xP (n : ℕ) : sProp 𝕄 := if valid L n then xtPiece d L fx n else iprop(emp)
def oP (n : ℕ) : sProp 𝕄 := if valid L n then oPiece d L n else iprop(emp)

/-- What the tile holds outside the slots before trip `t`: every piece of the argument row but those being fetched
    (`2t`, `2t + 1`), every piece of the result but those being written out (`2t - 2`, `2t - 1`). -/
def xSet (t : ℕ) : Finset ℕ := (Finset.range 18).filter fun n => n ≠ 2 * t ∧ n ≠ 2 * t + 1
def oSet (t : ℕ) : Finset ℕ := (Finset.range 18).filter fun n => n + 2 ≠ 2 * t ∧ n + 2 ≠ 2 * t + 1

def inv (t : ℕ) (_ : PUnit) : sProp 𝕄 :=
  iprop(Transfers.MayWaits (thr d L) (none : HIx 22) O
    ∗ (∃ W', ⌜∀ p ∈ W', p ∈ W ∨ p.2 = none⌝ ∗ owes (thr d L) O W')
    ∗ bigSep (xSet t) (xP d L fx) ∗ bigSep (oSet t) (oP d L)
    ∗ inSlot d L fx a4 cc4_scratch4.sem (2 * t) ∗ outSlot d L a6 cc4_scratch6.sem (2 * t)
    ∗ inSlot d L fx a5 cc4_scratch5.sem (2 * t + 1) ∗ outSlot d L a7 cc4_scratch7.sem (2 * t + 1))

omit [FloatOps F] in
theorem two_out {Φ : ℕ → sProp 𝕄} {s : Finset ℕ} {a b : ℕ} (ha : a ∈ s) (hb : b ∈ s) (hab : a ≠ b) :
    bigSep s Φ = iprop(Φ a ∗ Φ b ∗ bigSep ((s.erase a).erase b) Φ) := by
  rw [SparseCore.bigSep_erase' ha, SparseCore.bigSep_erase' (Finset.mem_erase.mpr ⟨fun e => hab e.symm, hb⟩)]

omit [FloatOps F] in
theorem range18_split : (Finset.range 18) = insert 0 (insert 1 (xSet 0)) := by decide

theorem xRange_split (v0 : valid L 0) (v1 : valid L 1) :
    bigSep (Finset.range 18) (xP d L fx) = iprop(xtPiece d L fx 0 ∗ xtPiece d L fx 1 ∗ bigSep (xSet 0) (xP d L fx)) := by
  rw [range18_split, SparseCore.bigSep_insert' (by decide), SparseCore.bigSep_insert' (by decide)]
  unfold xP; rw [if_pos v0, if_pos v1]
omit [FloatOps F] in
theorem oSet_zero : oSet 0 = Finset.range 18 := by decide

theorem inSlot_pos {a : Memref sig .scVector .vmem S8x3200 .f32} {sm : DmaSem sig} {n : ℕ} (v : valid L n) :
    inSlot d L fx a sm n = iprop(∃ g, Transfers.Flight countersEmb (thr d L) (SemLoc.dma sm) (default : HIx 22) NN
      iprop((a.view.loc (thr d L) ↦{fullShare} g) ∗ xtPiece d L fx n)) := by unfold inSlot; rw [if_pos v]
theorem inSlot_neg {a : Memref sig .scVector .vmem S8x3200 .f32} {sm : DmaSem sig} {n : ℕ} (v : ¬ valid L n) :
    inSlot d L fx a sm n = iprop((∃ g, a.view.loc (thr d L) ↦{fullShare} g) ∗ semVal (thr d L, SemLoc.dma sm) 0) := by
  unfold inSlot; rw [if_neg v]
theorem outSlot_pos {a : Memref sig .scVector .vmem S25600 .f32} {sm : DmaSem sig} {m : ℕ} (h : 2 ≤ m ∧ valid L (m - 2)) :
    outSlot (F := F) d L a sm m = iprop(∃ g, Transfers.Flight countersEmb (thr d L) (SemLoc.dma sm) (default : HIx 22) NN
        iprop(oPiece (F := F) d L (m - 2) ∗ ((stg a).view.loc (thr d L) ↦[(stg a).view.set]{fullShare} g))
      ∗ (a.view.loc (thr d L) ↦[Finset.univ \ (stg a).view.set]{fullShare} g)) := by unfold outSlot; rw [if_pos h]
theorem outSlot_neg {a : Memref sig .scVector .vmem S25600 .f32} {sm : DmaSem sig} {m : ℕ} (h : ¬ (2 ≤ m ∧ valid L (m - 2))) :
    outSlot (F := F) d L a sm m = iprop((∃ g, a.view.loc (thr d L) ↦{fullShare} g) ∗ semVal (thr d L, SemLoc.dma sm) 0) := by
  unfold outSlot; rw [if_neg h]

/-- A fetch in flight, its source window spelt by any offsets equal to piece `n`'s, fills the fetch slot for `n`. -/
theorem fl_in {off : Fin 2 → ℕ} {n : ℕ} (h : off = ![4, pos L n]) (p : ∀ a, off a + S1x3200.size a ≤ S22x1600000.size a) (v : valid L n)
    (a : Memref sig .scVector .vmem S8x3200 .f32) (sm : DmaSem sig) :
    (iprop(∃ g, Transfers.Flight countersEmb (thr d L) (SemLoc.dma sm) (default : HIx 22) NN
        iprop((a.view.loc (thr d L) ↦{fullShare} g)
          ∗ (((xtW).slice (Rect.unit (s := S22x1600000) off S1x3200.size p) (fun _ => rfl)).view.loc (thr d L)
              ↦[((xtW).slice (Rect.unit (s := S22x1600000) off S1x3200.size p) (fun _ => rfl)).view.set]{fullShare} fx))) : sProp 𝕄)
      ⊢ inSlot d L fx a sm n := by
  rw [inSlot_pos d L fx v]
  iintro ⟨%g, H⟩
  have hD : (iprop((a.view.loc (thr d L) ↦{fullShare} g)
          ∗ (((xtW).slice (Rect.unit (s := S22x1600000) off S1x3200.size p) (fun _ => rfl)).view.loc (thr d L)
              ↦[((xtW).slice (Rect.unit (s := S22x1600000) off S1x3200.size p) (fun _ => rfl)).view.set]{fullShare} fx)) : sProp 𝕄)
      ⊢ iprop((a.view.loc (thr d L) ↦{fullShare} g) ∗ xtPiece d L fx n) := by
    iintro ⟨H1, H2⟩
    isplitl [H1]; · iexact H1
    iapply (Entails.of_eq (in_congr d L h p (in_inb L n) fx)); iexact H2
  iexists g
  iapply (Transfers.Flight_mono countersEmb (thr d L) hD); iexact H

/-- A write-out in flight, its destination window spelt by any offsets equal to piece `n`'s, with the rest of the
    staging buffer, fills the write-out slot for `n + 2`. -/
theorem fl_out {off : Fin 1 → ℕ} {n : ℕ} (h : off = ![pos L n]) (p : ∀ a, off a + S3200.size a ≤ S1600000.size a) (v : valid L n)
    (a : Memref sig .scVector .vmem S25600 .f32) (sm : DmaSem sig) :
    (iprop(∃ (f : Buf (Elt F) ((oW).view.loc (thr d L))) (g : Buf (Elt F) (a.view.loc (thr d L))), Transfers.Flight countersEmb (thr d L) (SemLoc.dma sm) (default : HIx 22) NN
        iprop((((oW).slice (Rect.unit (s := S1600000) off S3200.size p) (fun _ => rfl)).view.loc (thr d L)
              ↦[((oW).slice (Rect.unit (s := S1600000) off S3200.size p) (fun _ => rfl)).view.set]{fullShare} f)
          ∗ ((stg a).view.loc (thr d L) ↦[(stg a).view.set]{fullShare} g))
        ∗ (a.view.loc (thr d L) ↦[Finset.univ \ (stg a).view.set]{fullShare} g)) : sProp 𝕄)
      ⊢ outSlot (F := F) d L a sm (n + 2) := by
  rw [outSlot_pos (F := F) d L (m := n + 2) ⟨by omega, by simpa using v⟩]
  iintro ⟨%f, %g, H, R⟩
  have hD : (iprop((((oW).slice (Rect.unit (s := S1600000) off S3200.size p) (fun _ => rfl)).view.loc (thr d L)
              ↦[((oW).slice (Rect.unit (s := S1600000) off S3200.size p) (fun _ => rfl)).view.set]{fullShare} f)
          ∗ ((stg a).view.loc (thr d L) ↦[(stg a).view.set]{fullShare} g)) : sProp 𝕄)
      ⊢ iprop(oPiece (F := F) d L (n + 2 - 2) ∗ ((stg a).view.loc (thr d L) ↦[(stg a).view.set]{fullShare} g)) := by
    rw [Nat.add_sub_cancel]
    iintro ⟨H1, H2⟩
    isplitl [H1]
    · iexists f; iapply (Entails.of_eq (out_congr d L h p (out_inb L n) f)); iexact H1
    · iexact H2
  iexists g
  isplitl [H]
  · iapply (Transfers.Flight_mono countersEmb (thr d L) hD); iexact H
  · iexact R

/-! The pieces outside the slots, from one trip to the next. -/
def xCore (k : ℕ) : Finset ℕ := (Finset.range 18).filter fun n => n ≠ 2 * k ∧ n ≠ 2 * k + 1 ∧ n ≠ 2 * k + 2 ∧ n ≠ 2 * k + 3
def oCore (k : ℕ) : Finset ℕ := (Finset.range 18).filter fun n => n + 2 ≠ 2 * k ∧ n + 2 ≠ 2 * k + 1 ∧ n ≠ 2 * k ∧ n ≠ 2 * k + 1

omit [FloatOps F] in
theorem xSet_out (Φ : ℕ → sProp 𝕄) (k : ℕ) (hk : k < 8) : bigSep (xSet k) Φ = iprop(Φ (2 * k + 2) ∗ Φ (2 * k + 3) ∗ bigSep (xCore k) Φ) := by
  have e : ((xSet k).erase (2 * k + 2)).erase (2 * k + 3) = xCore k := by
    ext n; simp only [xSet, xCore, Finset.mem_erase, Finset.mem_filter, Finset.mem_range]; omega
  rw [← e]; exact two_out (by simp only [xSet, Finset.mem_filter, Finset.mem_range]; omega) (by simp only [xSet, Finset.mem_filter, Finset.mem_range]; omega) (by omega)
omit [FloatOps F] in
theorem xSet_in (Φ : ℕ → sProp 𝕄) (k : ℕ) (hk : k < 8) : bigSep (xSet (k + 1)) Φ = iprop(Φ (2 * k) ∗ Φ (2 * k + 1) ∗ bigSep (xCore k) Φ) := by
  have e : ((xSet (k + 1)).erase (2 * k)).erase (2 * k + 1) = xCore k := by
    ext n; simp only [xSet, xCore, Finset.mem_erase, Finset.mem_filter, Finset.mem_range]; omega
  rw [← e]; exact two_out (by simp only [xSet, Finset.mem_filter, Finset.mem_range]; omega) (by simp only [xSet, Finset.mem_filter, Finset.mem_range]; omega) (by omega)
omit [FloatOps F] in
theorem oSet_out (Φ : ℕ → sProp 𝕄) (k : ℕ) (hk : k < 8) : bigSep (oSet k) Φ = iprop(Φ (2 * k) ∗ Φ (2 * k + 1) ∗ bigSep (oCore k) Φ) := by
  have e : ((oSet k).erase (2 * k)).erase (2 * k + 1) = oCore k := by
    ext n; simp only [oSet, oCore, Finset.mem_erase, Finset.mem_filter, Finset.mem_range]; omega
  rw [← e]; exact two_out (by simp only [oSet, Finset.mem_filter, Finset.mem_range]; omega) (by simp only [oSet, Finset.mem_filter, Finset.mem_range]; omega) (by omega)
omit [FloatOps F] in
theorem oSet_in (Φ : ℕ → sProp 𝕄) (k : ℕ) (hk : k < 8) (hk1 : 1 ≤ k) :
    bigSep (oSet (k + 1)) Φ = iprop(Φ (2 * k - 2) ∗ Φ (2 * k - 1) ∗ bigSep (oCore k) Φ) := by
  have e : ((oSet (k + 1)).erase (2 * k - 2)).erase (2 * k - 1) = oCore k := by
    ext n; simp only [oSet, oCore, Finset.mem_erase, Finset.mem_filter, Finset.mem_range]; omega
  rw [← e]; exact two_out (by simp only [oSet, Finset.mem_filter, Finset.mem_range]; omega) (by simp only [oSet, Finset.mem_filter, Finset.mem_range]; omega) (by omega)

theorem xP_pos {n : ℕ} (v : valid L n) : xP d L fx n = xtPiece d L fx n := if_pos v
theorem oP_pos {n : ℕ} (v : valid L n) : oP (F := F) d L n = oPiece (F := F) d L n := if_pos v
theorem xP_neg {n : ℕ} (v : ¬ valid L n) : xP d L fx n = iprop(emp) := if_neg v
theorem oP_neg {n : ℕ} (v : ¬ valid L n) : oP (F := F) d L n = iprop(emp) := if_neg v

/-- Piece `n` of the result at its final contents: row 4 of the transposed argument. -/
def oQ (n : ℕ) : sProp 𝕄 :=
  if valid L n then (outM L n).view.loc (thr d L) ↦[(outM L n).view.set]{fullShare} (Cert.Spec.row 4 fx) else iprop(emp)

/-- What a tile is handed for the call: its pieces of row 4 of the transposed argument, at the argument's contents, and
    its pieces of the result at some contents. What it hands back: the same pieces of the argument, and its pieces of
    the result holding the row. -/
def goRes : sProp 𝕄 := iprop(bigSep (Finset.range 18) (xP d L fx) ∗ bigSep (Finset.range 18) (oP (F := F) d L))
def tdRes : sProp 𝕄 := iprop(bigSep (Finset.range 18) (xP d L fx) ∗ bigSep (Finset.range 18) (oQ d L fx))

end Tile

end Cert.Proof.TileB4

end
-- ==== Proof.TileB5Defs.lean ====
/-
  One vector subcore's task of copy kernel 5 (counting from 0): definitions. The task moves its pieces of row 5 of the
  transposed argument (pieces of 3200 consecutive elements, piece number 2·s + c + 32·n for the subcore (c, s) and
  n = 0, 1, … while that number is below 500) into the flat result: each piece is fetched into a staging row, copied
  16 lanes at a time into a flat staging buffer, and written out, two pieces in flight at a time. Here: the pieces as
  memrefs, the program's own spellings of them, the printed conditions as facts about the trip, the two slots' states
  between trips, and what the tile holds outside the slots.
-/
import proofs.«206869_g37898791420194_cont_8to1_b_558_20_alg».proof.Defs
import Idealize.ShloMosaic.Lib.SparseCore.Launch
import Idealize.ShloMosaic.Lib.StableHlo.Run
import Idealize.ShloMosaic.Lib.Pipeline.Kit
import Idealize.ShloMosaic.Lib.Tactic
import proofs.«206869_g37898791420194_cont_8to1_b_558_20_alg».proof.Proof.Gen.Kernel
import proofs.«206869_g37898791420194_cont_8to1_b_558_20_alg».proof.Proof.Gen.Kernel.Skeleton
import proofs.«206869_g37898791420194_cont_8to1_b_558_20_alg».proof.Proof.Spec

noncomputable section

namespace Cert.Proof.TileB5

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

abbrev ΛP : Labels := Pipeline.Sig Λ₀ (Fin 0) fun p => (pcfgs (F := F) p).Adm
abbrev K : SparseCore.Cfg τ sig (ΛP (F := F)) 22 := sc (F := F)
abbrev 𝒱₀ : Variants := Variants.none

abbrev UH : Type := URounds (GSem nD τ sig) ℕ
abbrev UU : Type := UH × Counters

local notation "𝕄" => MT nD τ sig (HIx 22) (Elt F) ℕ UU ℕ

local notation "xtW" => (Memref.whole Cert.Kernel.main_v0_scv : Memref Cert.Kernel.sig Kind.scVector Space.hbm Cert.Kernel.S22x1600000 EltTy.f32)
local notation "oW" => (Memref.whole Cert.Kernel.main_v6_scv : Memref Cert.Kernel.sig Kind.scVector Space.hbm Cert.Kernel.S1600000 EltTy.f32)
local notation "a4" => (Memref.whole Cert.Kernel.cc5_scratch0 : Memref Cert.Kernel.sig Kind.scVector Space.vmem Cert.Kernel.S8x3200 EltTy.f32)
local notation "a5" => (Memref.whole Cert.Kernel.cc5_scratch1 : Memref Cert.Kernel.sig Kind.scVector Space.vmem Cert.Kernel.S8x3200 EltTy.f32)
local notation "a6" => (Memref.whole Cert.Kernel.cc5_scratch2 : Memref Cert.Kernel.sig Kind.scVector Space.vmem Cert.Kernel.S25600 EltTy.f32)
local notation "a7" => (Memref.whole Cert.Kernel.cc5_scratch3 : Memref Cert.Kernel.sig Kind.scVector Space.vmem Cert.Kernel.S25600 EltTy.f32)

variable [FloatOps F]

section Tile

variable (d : Dev nD) (L : grid5.Coords)

abbrev cV (L : grid5.Coords) : Fin τ.nSC := (L 0).castLE hcore5
abbrev jV (L : grid5.Coords) : Fin τ.nSub := (L 1).castLE hsub5
abbrev thr (d : Dev nD) (L : grid5.Coords) : Thread nD τ := V d (cV L) (jV L)

/-- The tile's number 2·s + c, and whether it has sixteen pieces (numbers below 20) or fifteen. -/
abbrev wid (L : grid5.Coords) : ℕ := 2 * (L 1).val + (L 0).val
abbrev big (L : grid5.Coords) : Prop := wid L < 20

omit [FloatOps F] in
theorem wid_lt (L : grid5.Coords) : wid L < 32 := by
  have h0 : (L 0).val < 2 := (L 0).isLt
  have h1 : (L 1).val < 16 := (L 1).isLt
  unfold wid; omega

/-- Piece `n` of the tile exists: `n < 15`, or `n = 15` on a tile with sixteen pieces. It is the piece number
    `wid + 32·n < 500` of the row. -/
def valid (L : grid5.Coords) (n : ℕ) : Prop := n < 15 ∨ (n = 15 ∧ big L)
instance (L : grid5.Coords) (n : ℕ) : Decidable (valid L n) := by unfold valid big; infer_instance

omit [FloatOps F] in
theorem valid_iff (L : grid5.Coords) (n : ℕ) : valid L n ↔ wid L + 32 * n < 500 := by
  have := wid_lt L; unfold valid big; omega

/-- Where piece `n` starts in the row (clamped to the last piece of the row, so that the rectangle is in bounds for
    every `n`; for a valid piece the clamp is idle). -/
abbrev pos (L : grid5.Coords) (n : ℕ) : ℕ := 3200 * min (wid L + 32 * n) 499

omit [FloatOps F] in
theorem pos_valid {L : grid5.Coords} {n : ℕ} (h : valid L n) : pos L n = 6400 * (L 1).val + 3200 * (L 0).val + 102400 * n := by
  have := (valid_iff L n).mp h; unfold pos wid at *; omega

omit [FloatOps F] in
theorem in_inb (L : grid5.Coords) (n : ℕ) : ∀ a, (![5, pos L n] : Fin 2 → ℕ) a + S1x3200.size a ≤ S22x1600000.size a := by
  intro a; fin_cases a
  · show 5 + 1 ≤ 22; omega
  · show pos L n + 3200 ≤ 1600000; unfold pos; omega
omit [FloatOps F] in
theorem out_inb (L : grid5.Coords) (n : ℕ) : ∀ a, (![pos L n] : Fin 1 → ℕ) a + S3200.size a ≤ S1600000.size a := by
  intro a; fin_cases a
  show pos L n + 3200 ≤ 1600000; unfold pos; omega

/-- Piece `n` of row 5 of the transposed argument, and piece `n` of the flat result, as memrefs of the tile. -/
abbrev inM (L : grid5.Coords) (n : ℕ) : Memref sig .scVector .hbm S1x3200 .f32 :=
  (xtW).slice (Rect.unit (s := S22x1600000) ![5, pos L n] S1x3200.size (in_inb L n)) (fun _ => rfl)
abbrev outM (L : grid5.Coords) (n : ℕ) : Memref sig .scVector .hbm S3200 .f32 :=
  (oW).slice (Rect.unit (s := S1600000) ![pos L n] S3200.size (out_inb L n)) (fun _ => rfl)

/-! The program's own slices are these pieces: by the closed forms of its offset functions. -/

omit [FloatOps F] in
theorem off2 {a b : ℕ} (h : a = b) : (![5, a] : Fin 2 → ℕ) = ![5, b] := by rw [h]
omit [FloatOps F] in
theorem off1' {a b : ℕ} (h : a = b) : (![a] : Fin 1 → ℕ) = ![b] := by rw [h]

omit [FloatOps F] in
theorem off_in0 (L : grid5.Coords) (h : valid L 0) : k5_off1 L 0#32 = ![5, pos L 0] :=
  (k5_off1_eq L 0).trans (off2 (by rw [pos_valid h]; simp))
omit [FloatOps F] in
theorem off_in1 (L : grid5.Coords) (h : valid L 1) : k5_off1 L 32#32 = ![5, pos L 1] :=
  (k5_off1_eq L 1).trans (off2 (by rw [pos_valid h]; simp))
omit [FloatOps F] in
theorem off_6 (L : grid5.Coords) (t : Fin k5_t1_loop.trips) (h : valid L (2 * t.val + 2)) : k5_off6 L t = ![5, pos L (2 * t.val + 2)] :=
  (k5_off6_eq L t).trans (off2 (by rw [pos_valid h]; omega))
omit [FloatOps F] in
theorem off_11 (L : grid5.Coords) (t : Fin k5_t1_loop.trips) (h : valid L (2 * t.val + 3)) : k5_off11 L t = ![5, pos L (2 * t.val + 3)] :=
  (k5_off11_eq L t).trans (off2 (by rw [pos_valid h]; omega))
omit [FloatOps F] in
theorem off_5 (L : grid5.Coords) (t : Fin k5_t1_loop.trips) (h : valid L (2 * t.val)) : k5_off5 L t = ![pos L (2 * t.val)] :=
  (k5_off5_eq L t).trans (off1' (by rw [pos_valid h]; omega))
omit [FloatOps F] in
theorem off_10 (L : grid5.Coords) (t : Fin k5_t1_loop.trips) (h : valid L (2 * t.val + 1)) : k5_off10 L t = ![pos L (2 * t.val + 1)] :=
  (k5_off10_eq L t).trans (off1' (by rw [pos_valid h]; omega))

/-- Holding a 1 × 3200 window of the transposed argument, or a 3200 window of the result, by exactly its elements
    says the same whichever way the window's offsets are spelt. -/
theorem in_congr {off off' : Fin 2 → ℕ} (h : off = off') (p : ∀ a, off a + S1x3200.size a ≤ S22x1600000.size a)
    (p' : ∀ a, off' a + S1x3200.size a ≤ S22x1600000.size a) (f : Buf (Elt F) ((xtW).view.loc (thr d L))) :
    (((xtW).slice (Rect.unit (s := S22x1600000) off S1x3200.size p) (fun _ => rfl)).view.loc (thr d L)
        ↦[((xtW).slice (Rect.unit (s := S22x1600000) off S1x3200.size p) (fun _ => rfl)).view.set]{fullShare} f : sProp 𝕄)
      = (((xtW).slice (Rect.unit (s := S22x1600000) off' S1x3200.size p') (fun _ => rfl)).view.loc (thr d L)
        ↦[((xtW).slice (Rect.unit (s := S22x1600000) off' S1x3200.size p') (fun _ => rfl)).view.set]{fullShare} f) := by
  subst h; rfl
theorem out_congr {off off' : Fin 1 → ℕ} (h : off = off') (p : ∀ a, off a + S3200.size a ≤ S1600000.size a)
    (p' : ∀ a, off' a + S3200.size a ≤ S1600000.size a) (f : Buf (Elt F) ((oW).view.loc (thr d L))) :
    (((oW).slice (Rect.unit (s := S1600000) off S3200.size p) (fun _ => rfl)).view.loc (thr d L)
        ↦[((oW).slice (Rect.unit (s := S1600000) off S3200.size p) (fun _ => rfl)).view.set]{fullShare} f : sProp 𝕄)
      = (((oW).slice (Rect.unit (s := S1600000) off' S3200.size p') (fun _ => rfl)).view.loc (thr d L)
        ↦[((oW).slice (Rect.unit (s := S1600000) off' S3200.size p') (fun _ => rfl)).view.set]{fullShare} f) := by
  subst h; rfl

/-! The printed conditions, as facts about the trip and the tile. -/

omit [FloatOps F] in
theorem trips1 : k5_t1_loop.trips = 8 := by decide
omit [FloatOps F] in
theorem cond1_iff : ∀ (t : Fin k5_t1_loop.trips), k5_cond1 t = 1#1 ↔ 1 ≤ t.val := by decide +kernel
omit [FloatOps F] in
theorem cond2_iff : ∀ (L : grid5.Coords) (t : Fin k5_t1_loop.trips), k5_cond2 L t = 1#1 := by decide +kernel
omit [FloatOps F] in
theorem cond3_iff : ∀ (L : grid5.Coords) (t : Fin k5_t1_loop.trips), k5_cond3 L t = 1#1 ↔ t.val ≤ 6 := by decide +kernel
omit [FloatOps F] in
theorem cond4_iff : ∀ (t : Fin k5_t1_loop.trips), k5_cond4 t = 1#1 ↔ 1 ≤ t.val := by decide +kernel
omit [FloatOps F] in
theorem cond5_iff : ∀ (L : grid5.Coords) (t : Fin k5_t1_loop.trips), k5_cond5 L t = 1#1 ↔ (t.val ≤ 6 ∨ big L) := by decide +kernel
omit [FloatOps F] in
theorem cond6_iff : ∀ (L : grid5.Coords) (t : Fin k5_t1_loop.trips), k5_cond6 L t = 1#1 ↔ (t.val ≤ 5 ∨ (t.val = 6 ∧ big L)) := by decide +kernel
omit [FloatOps F] in
theorem cond7_iff : ∀ (L : grid5.Coords), k5_cond7 L = 1#1 := by decide +kernel
omit [FloatOps F] in
theorem cond8_iff : ∀ (L : grid5.Coords), k5_cond8 L = 1#1 ↔ big L := by decide +kernel

variable (O : CellTallies nD τ sig (HIx 22)) (W : Waits sig (HIx 22))
variable (fx : Buf (Elt F) ((xtW).view.loc (thr d L)))

abbrev NN : ℕ := 102400

/-- The 3200-element window of a flat staging buffer that a piece is written out from. -/
abbrev stg (a : Memref sig .scVector .vmem S25600 .f32) : Memref sig .scVector .vmem S3200 .f32 :=
  a.slice (Rect.unit (s := S25600) ![0] S3200.size inb_S25600_S3200_0) (fun _ => rfl)

/-- Piece `n` of the argument row held by exactly its elements, at the argument's contents; piece `n` of the result
    held by exactly its elements, at some contents. -/
abbrev xtPiece (n : ℕ) : sProp 𝕄 := (inM L n).view.loc (thr d L) ↦[(inM L n).view.set]{fullShare} fx
abbrev oPiece (n : ℕ) : sProp 𝕄 := iprop(∃ f, (outM L n).view.loc (thr d L) ↦[(outM L n).view.set]{fullShare} f)

/-- The lane-copy loop of a slot: the staging row keeps its contents, the flat staging buffer holds some contents. -/
def laneInv0 (g4 : Buf (Elt F) ((a4).view.loc (thr d L))) (_ : ℕ) (_ : PUnit) : sProp 𝕄 :=
  iprop(((a4).view.loc (thr d L) ↦{fullShare} g4) ∗ (∃ g, (a6).view.loc (thr d L) ↦{fullShare} g))
def laneInv1 (g5 : Buf (Elt F) ((a5).view.loc (thr d L))) (_ : ℕ) (_ : PUnit) : sProp 𝕄 :=
  iprop(((a5).view.loc (thr d L) ↦{fullShare} g5) ∗ (∃ g, (a7).view.loc (thr d L) ↦{fullShare} g))

/-- A fetch slot before trip work on piece `n`: the piece's fetch in flight (it will hand back the staging row at some
    contents, and the piece), or, when there is no such piece, the slot idle. -/
def inSlot (a : Memref sig .scVector .vmem S8x3200 .f32) (sm : DmaSem sig) (n : ℕ) : sProp 𝕄 :=
  if valid L n then
    iprop(∃ g, Transfers.Flight countersEmb (thr d L) (SemLoc.dma sm) (default : HIx 22) NN
      iprop((a.view.loc (thr d L) ↦{fullShare} g) ∗ xtPiece d L fx n))
  else iprop((∃ g, a.view.loc (thr d L) ↦{fullShare} g) ∗ semVal (thr d L, SemLoc.dma sm) 0)

/-- A write-out slot before trip work on piece `m`: piece `m - 2`'s write-out in flight (it will hand back that piece
    of the result at some contents, and the staging window), the rest of the staging buffer beside it; or idle. -/
def outSlot (a : Memref sig .scVector .vmem S25600 .f32) (sm : DmaSem sig) (m : ℕ) : sProp 𝕄 :=
  if 2 ≤ m ∧ valid L (m - 2) then
    iprop(∃ g, Transfers.Flight countersEmb (thr d L) (SemLoc.dma sm) (default : HIx 22) NN
        iprop(oPiece d L (m - 2) ∗ ((stg a).view.loc (thr d L) ↦[(stg a).view.set]{fullShare} g))
      ∗ (a.view.loc (thr d L) ↦[Finset.univ \ (stg a).view.set]{fullShare} g))
  else iprop((∃ g, a.view.loc (thr d L) ↦{fullShare} g) ∗ semVal (thr d L, SemLoc.dma sm) 0)

/-- Piece `n` when it exists, nothing otherwise. -/
def xP (n : ℕ) : sProp 𝕄 := if valid L n then xtPiece d L fx n else iprop(emp)
def oP (n : ℕ) : sProp 𝕄 := if valid L n then oPiece d L n else iprop(emp)

/-- What the tile holds outside the slots before trip `t`: every piece of the argument row but those being fetched
    (`2t`, `2t + 1`), every piece of the result but those being written out (`2t - 2`, `2t - 1`). -/
def xSet (t : ℕ) : Finset ℕ := (Finset.range 18).filter fun n => n ≠ 2 * t ∧ n ≠ 2 * t + 1
def oSet (t : ℕ) : Finset ℕ := (Finset.range 18).filter fun n => n + 2 ≠ 2 * t ∧ n + 2 ≠ 2 * t + 1

def inv (t : ℕ) (_ : PUnit) : sProp 𝕄 :=
  iprop(Transfers.MayWaits (thr d L) (none : HIx 22) O
    ∗ (∃ W', ⌜∀ p ∈ W', p ∈ W ∨ p.2 = none⌝ ∗ owes (thr d L) O W')
    ∗ bigSep (xSet t) (xP d L fx) ∗ bigSep (oSet t) (oP d L)
    ∗ inSlot d L fx a4 cc5_scratch4.sem (2 * t) ∗ outSlot d L a6 cc5_scratch6.sem (2 * t)
    ∗ inSlot d L fx a5 cc5_scratch5.sem (2 * t + 1) ∗ outSlot d L a7 cc5_scratch7.sem (2 * t + 1))

omit [FloatOps F] in
theorem two_out {Φ : ℕ → sProp 𝕄} {s : Finset ℕ} {a b : ℕ} (ha : a ∈ s) (hb : b ∈ s) (hab : a ≠ b) :
    bigSep s Φ = iprop(Φ a ∗ Φ b ∗ bigSep ((s.erase a).erase b) Φ) := by
  rw [SparseCore.bigSep_erase' ha, SparseCore.bigSep_erase' (Finset.mem_erase.mpr ⟨fun e => hab e.symm, hb⟩)]

omit [FloatOps F] in
theorem range18_split : (Finset.range 18) = insert 0 (insert 1 (xSet 0)) := by decide

theorem xRange_split (v0 : valid L 0) (v1 : valid L 1) :
    bigSep (Finset.range 18) (xP d L fx) = iprop(xtPiece d L fx 0 ∗ xtPiece d L fx 1 ∗ bigSep (xSet 0) (xP d L fx)) := by
  rw [range18_split, SparseCore.bigSep_insert' (by decide), SparseCore.bigSep_insert' (by decide)]
  unfold xP; rw [if_pos v0, if_pos v1]
omit [FloatOps F] in
theorem oSet_zero : oSet 0 = Finset.range 18 := by decide

theorem inSlot_pos {a : Memref sig .scVector .vmem S8x3200 .f32} {sm : DmaSem sig} {n : ℕ} (v : valid L n) :
    inSlot d L fx a sm n = iprop(∃ g, Transfers.Flight countersEmb (thr d L) (SemLoc.dma sm) (default : HIx 22) NN
      iprop((a.view.loc (thr d L) ↦{fullShare} g) ∗ xtPiece d L fx n)) := by unfold inSlot; rw [if_pos v]
theorem inSlot_neg {a : Memref sig .scVector .vmem S8x3200 .f32} {sm : DmaSem sig} {n : ℕ} (v : ¬ valid L n) :
    inSlot d L fx a sm n = iprop((∃ g, a.view.loc (thr d L) ↦{fullShare} g) ∗ semVal (thr d L, SemLoc.dma sm) 0) := by
  unfold inSlot; rw [if_neg v]
theorem outSlot_pos {a : Memref sig .scVector .vmem S25600 .f32} {sm : DmaSem sig} {m : ℕ} (h : 2 ≤ m ∧ valid L (m - 2)) :
    outSlot (F := F) d L a sm m = iprop(∃ g, Transfers.Flight countersEmb (thr d L) (SemLoc.dma sm) (default : HIx 22) NN
        iprop(oPiece (F := F) d L (m - 2) ∗ ((stg a).view.loc (thr d L) ↦[(stg a).view.set]{fullShare} g))
      ∗ (a.view.loc (thr d L) ↦[Finset.univ \ (stg a).view.set]{fullShare} g)) := by unfold outSlot; rw [if_pos h]
theorem outSlot_neg {a : Memref sig .scVector .vmem S25600 .f32} {sm : DmaSem sig} {m : ℕ} (h : ¬ (2 ≤ m ∧ valid L (m - 2))) :
    outSlot (F := F) d L a sm m = iprop((∃ g, a.view.loc (thr d L) ↦{fullShare} g) ∗ semVal (thr d L, SemLoc.dma sm) 0) := by
  unfold outSlot; rw [if_neg h]

/-- A fetch in flight, its source window spelt by any offsets equal to piece `n`'s, fills the fetch slot for `n`. -/
theorem fl_in {off : Fin 2 → ℕ} {n : ℕ} (h : off = ![5, pos L n]) (p : ∀ a, off a + S1x3200.size a ≤ S22x1600000.size a) (v : valid L n)
    (a : Memref sig .scVector .vmem S8x3200 .f32) (sm : DmaSem sig) :
    (iprop(∃ g, Transfers.Flight countersEmb (thr d L) (SemLoc.dma sm) (default : HIx 22) NN
        iprop((a.view.loc (thr d L) ↦{fullShare} g)
          ∗ (((xtW).slice (Rect.unit (s := S22x1600000) off S1x3200.size p) (fun _ => rfl)).view.loc (thr d L)
              ↦[((xtW).slice (Rect.unit (s := S22x1600000) off S1x3200.size p) (fun _ => rfl)).view.set]{fullShare} fx))) : sProp 𝕄)
      ⊢ inSlot d L fx a sm n := by
  rw [inSlot_pos d L fx v]
  iintro ⟨%g, H⟩
  have hD : (iprop((a.view.loc (thr d L) ↦{fullShare} g)
          ∗ (((xtW).slice (Rect.unit (s := S22x1600000) off S1x3200.size p) (fun _ => rfl)).view.loc (thr d L)
              ↦[((xtW).slice (Rect.unit (s := S22x1600000) off S1x3200.size p) (fun _ => rfl)).view.set]{fullShare} fx)) : sProp 𝕄)
      ⊢ iprop((a.view.loc (thr d L) ↦{fullShare} g) ∗ xtPiece d L fx n) := by
    iintro ⟨H1, H2⟩
    isplitl [H1]; · iexact H1
    iapply (Entails.of_eq (in_congr d L h p (in_inb L n) fx)); iexact H2
  iexists g
  iapply (Transfers.Flight_mono countersEmb (thr d L) hD); iexact H

/-- A write-out in flight, its destination window spelt by any offsets equal to piece `n`'s, with the rest of the
    staging buffer, fills the write-out slot for `n + 2`. -/
theorem fl_out {off : Fin 1 → ℕ} {n : ℕ} (h : off = ![pos L n]) (p : ∀ a, off a + S3200.size a ≤ S1600000.size a) (v : valid L n)
    (a : Memref sig .scVector .vmem S25600 .f32) (sm : DmaSem sig) :
    (iprop(∃ (f : Buf (Elt F) ((oW).view.loc (thr d L))) (g : Buf (Elt F) (a.view.loc (thr d L))), Transfers.Flight countersEmb (thr d L) (SemLoc.dma sm) (default : HIx 22) NN
        iprop((((oW).slice (Rect.unit (s := S1600000) off S3200.size p) (fun _ => rfl)).view.loc (thr d L)
              ↦[((oW).slice (Rect.unit (s := S1600000) off S3200.size p) (fun _ => rfl)).view.set]{fullShare} f)
          ∗ ((stg a).view.loc (thr d L) ↦[(stg a).view.set]{fullShare} g))
        ∗ (a.view.loc (thr d L) ↦[Finset.univ \ (stg a).view.set]{fullShare} g)) : sProp 𝕄)
      ⊢ outSlot (F := F) d L a sm (n + 2) := by
  rw [outSlot_pos (F := F) d L (m := n + 2) ⟨by omega, by simpa using v⟩]
  iintro ⟨%f, %g, H, R⟩
  have hD : (iprop((((oW).slice (Rect.unit (s := S1600000) off S3200.size p) (fun _ => rfl)).view.loc (thr d L)
              ↦[((oW).slice (Rect.unit (s := S1600000) off S3200.size p) (fun _ => rfl)).view.set]{fullShare} f)
          ∗ ((stg a).view.loc (thr d L) ↦[(stg a).view.set]{fullShare} g)) : sProp 𝕄)
      ⊢ iprop(oPiece (F := F) d L (n + 2 - 2) ∗ ((stg a).view.loc (thr d L) ↦[(stg a).view.set]{fullShare} g)) := by
    rw [Nat.add_sub_cancel]
    iintro ⟨H1, H2⟩
    isplitl [H1]
    · iexists f; iapply (Entails.of_eq (out_congr d L h p (out_inb L n) f)); iexact H1
    · iexact H2
  iexists g
  isplitl [H]
  · iapply (Transfers.Flight_mono countersEmb (thr d L) hD); iexact H
  · iexact R

/-! The pieces outside the slots, from one trip to the next. -/
def xCore (k : ℕ) : Finset ℕ := (Finset.range 18).filter fun n => n ≠ 2 * k ∧ n ≠ 2 * k + 1 ∧ n ≠ 2 * k + 2 ∧ n ≠ 2 * k + 3
def oCore (k : ℕ) : Finset ℕ := (Finset.range 18).filter fun n => n + 2 ≠ 2 * k ∧ n + 2 ≠ 2 * k + 1 ∧ n ≠ 2 * k ∧ n ≠ 2 * k + 1

omit [FloatOps F] in
theorem xSet_out (Φ : ℕ → sProp 𝕄) (k : ℕ) (hk : k < 8) : bigSep (xSet k) Φ = iprop(Φ (2 * k + 2) ∗ Φ (2 * k + 3) ∗ bigSep (xCore k) Φ) := by
  have e : ((xSet k).erase (2 * k + 2)).erase (2 * k + 3) = xCore k := by
    ext n; simp only [xSet, xCore, Finset.mem_erase, Finset.mem_filter, Finset.mem_range]; omega
  rw [← e]; exact two_out (by simp only [xSet, Finset.mem_filter, Finset.mem_range]; omega) (by simp only [xSet, Finset.mem_filter, Finset.mem_range]; omega) (by omega)
omit [FloatOps F] in
theorem xSet_in (Φ : ℕ → sProp 𝕄) (k : ℕ) (hk : k < 8) : bigSep (xSet (k + 1)) Φ = iprop(Φ (2 * k) ∗ Φ (2 * k + 1) ∗ bigSep (xCore k) Φ) := by
  have e : ((xSet (k + 1)).erase (2 * k)).erase (2 * k + 1) = xCore k := by
    ext n; simp only [xSet, xCore, Finset.mem_erase, Finset.mem_filter, Finset.mem_range]; omega
  rw [← e]; exact two_out (by simp only [xSet, Finset.mem_filter, Finset.mem_range]; omega) (by simp only [xSet, Finset.mem_filter, Finset.mem_range]; omega) (by omega)
omit [FloatOps F] in
theorem oSet_out (Φ : ℕ → sProp 𝕄) (k : ℕ) (hk : k < 8) : bigSep (oSet k) Φ = iprop(Φ (2 * k) ∗ Φ (2 * k + 1) ∗ bigSep (oCore k) Φ) := by
  have e : ((oSet k).erase (2 * k)).erase (2 * k + 1) = oCore k := by
    ext n; simp only [oSet, oCore, Finset.mem_erase, Finset.mem_filter, Finset.mem_range]; omega
  rw [← e]; exact two_out (by simp only [oSet, Finset.mem_filter, Finset.mem_range]; omega) (by simp only [oSet, Finset.mem_filter, Finset.mem_range]; omega) (by omega)
omit [FloatOps F] in
theorem oSet_in (Φ : ℕ → sProp 𝕄) (k : ℕ) (hk : k < 8) (hk1 : 1 ≤ k) :
    bigSep (oSet (k + 1)) Φ = iprop(Φ (2 * k - 2) ∗ Φ (2 * k - 1) ∗ bigSep (oCore k) Φ) := by
  have e : ((oSet (k + 1)).erase (2 * k - 2)).erase (2 * k - 1) = oCore k := by
    ext n; simp only [oSet, oCore, Finset.mem_erase, Finset.mem_filter, Finset.mem_range]; omega
  rw [← e]; exact two_out (by simp only [oSet, Finset.mem_filter, Finset.mem_range]; omega) (by simp only [oSet, Finset.mem_filter, Finset.mem_range]; omega) (by omega)

theorem xP_pos {n : ℕ} (v : valid L n) : xP d L fx n = xtPiece d L fx n := if_pos v
theorem oP_pos {n : ℕ} (v : valid L n) : oP (F := F) d L n = oPiece (F := F) d L n := if_pos v
theorem xP_neg {n : ℕ} (v : ¬ valid L n) : xP d L fx n = iprop(emp) := if_neg v
theorem oP_neg {n : ℕ} (v : ¬ valid L n) : oP (F := F) d L n = iprop(emp) := if_neg v

/-- Piece `n` of the result at its final contents: row 5 of the transposed argument. -/
def oQ (n : ℕ) : sProp 𝕄 :=
  if valid L n then (outM L n).view.loc (thr d L) ↦[(outM L n).view.set]{fullShare} (Cert.Spec.row 5 fx) else iprop(emp)

/-- What a tile is handed for the call: its pieces of row 5 of the transposed argument, at the argument's contents, and
    its pieces of the result at some contents. What it hands back: the same pieces of the argument, and its pieces of
    the result holding the row. -/
def goRes : sProp 𝕄 := iprop(bigSep (Finset.range 18) (xP d L fx) ∗ bigSep (Finset.range 18) (oP (F := F) d L))
def tdRes : sProp 𝕄 := iprop(bigSep (Finset.range 18) (xP d L fx) ∗ bigSep (Finset.range 18) (oQ d L fx))

end Tile

end Cert.Proof.TileB5

end
-- ==== Proof.TileB6Defs.lean ====
/-
  One vector subcore's task of copy kernel 6 (counting from 0): definitions. The task moves its pieces of row 6 of the
  transposed argument (pieces of 3200 consecutive elements, piece number 2·s + c + 32·n for the subcore (c, s) and
  n = 0, 1, … while that number is below 500) into the flat result: each piece is fetched into a staging row, copied
  16 lanes at a time into a flat staging buffer, and written out, two pieces in flight at a time. Here: the pieces as
  memrefs, the program's own spellings of them, the printed conditions as facts about the trip, the two slots' states
  between trips, and what the tile holds outside the slots.
-/
import proofs.«206869_g37898791420194_cont_8to1_b_558_20_alg».proof.Defs
import Idealize.ShloMosaic.Lib.SparseCore.Launch
import Idealize.ShloMosaic.Lib.StableHlo.Run
import Idealize.ShloMosaic.Lib.Pipeline.Kit
import Idealize.ShloMosaic.Lib.Tactic
import proofs.«206869_g37898791420194_cont_8to1_b_558_20_alg».proof.Proof.Gen.Kernel
import proofs.«206869_g37898791420194_cont_8to1_b_558_20_alg».proof.Proof.Gen.Kernel.Skeleton
import proofs.«206869_g37898791420194_cont_8to1_b_558_20_alg».proof.Proof.Spec

noncomputable section

namespace Cert.Proof.TileB6

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

abbrev ΛP : Labels := Pipeline.Sig Λ₀ (Fin 0) fun p => (pcfgs (F := F) p).Adm
abbrev K : SparseCore.Cfg τ sig (ΛP (F := F)) 22 := sc (F := F)
abbrev 𝒱₀ : Variants := Variants.none

abbrev UH : Type := URounds (GSem nD τ sig) ℕ
abbrev UU : Type := UH × Counters

local notation "𝕄" => MT nD τ sig (HIx 22) (Elt F) ℕ UU ℕ

local notation "xtW" => (Memref.whole Cert.Kernel.main_v0_scv : Memref Cert.Kernel.sig Kind.scVector Space.hbm Cert.Kernel.S22x1600000 EltTy.f32)
local notation "oW" => (Memref.whole Cert.Kernel.main_v7_scv : Memref Cert.Kernel.sig Kind.scVector Space.hbm Cert.Kernel.S1600000 EltTy.f32)
local notation "a4" => (Memref.whole Cert.Kernel.cc6_scratch0 : Memref Cert.Kernel.sig Kind.scVector Space.vmem Cert.Kernel.S8x3200 EltTy.f32)
local notation "a5" => (Memref.whole Cert.Kernel.cc6_scratch1 : Memref Cert.Kernel.sig Kind.scVector Space.vmem Cert.Kernel.S8x3200 EltTy.f32)
local notation "a6" => (Memref.whole Cert.Kernel.cc6_scratch2 : Memref Cert.Kernel.sig Kind.scVector Space.vmem Cert.Kernel.S25600 EltTy.f32)
local notation "a7" => (Memref.whole Cert.Kernel.cc6_scratch3 : Memref Cert.Kernel.sig Kind.scVector Space.vmem Cert.Kernel.S25600 EltTy.f32)

variable [FloatOps F]

section Tile

variable (d : Dev nD) (L : grid6.Coords)

abbrev cV (L : grid6.Coords) : Fin τ.nSC := (L 0).castLE hcore6
abbrev jV (L : grid6.Coords) : Fin τ.nSub := (L 1).castLE hsub6
abbrev thr (d : Dev nD) (L : grid6.Coords) : Thread nD τ := V d (cV L) (jV L)

/-- The tile's number 2·s + c, and whether it has sixteen pieces (numbers below 20) or fifteen. -/
abbrev wid (L : grid6.Coords) : ℕ := 2 * (L 1).val + (L 0).val
abbrev big (L : grid6.Coords) : Prop := wid L < 20

omit [FloatOps F] in
theorem wid_lt (L : grid6.Coords) : wid L < 32 := by
  have h0 : (L 0).val < 2 := (L 0).isLt
  have h1 : (L 1).val < 16 := (L 1).isLt
  unfold wid; omega

/-- Piece `n` of the tile exists: `n < 15`, or `n = 15` on a tile with sixteen pieces. It is the piece number
    `wid + 32·n < 500` of the row. -/
def valid (L : grid6.Coords) (n : ℕ) : Prop := n < 15 ∨ (n = 15 ∧ big L)
instance (L : grid6.Coords) (n : ℕ) : Decidable (valid L n) := by unfold valid big; infer_instance

omit [FloatOps F] in
theorem valid_iff (L : grid6.Coords) (n : ℕ) : valid L n ↔ wid L + 32 * n < 500 := by
  have := wid_lt L; unfold valid big; omega

/-- Where piece `n` starts in the row (clamped to the last piece of the row, so that the rectangle is in bounds for
    every `n`; for a valid piece the clamp is idle). -/
abbrev pos (L : grid6.Coords) (n : ℕ) : ℕ := 3200 * min (wid L + 32 * n) 499

omit [FloatOps F] in
theorem pos_valid {L : grid6.Coords} {n : ℕ} (h : valid L n) : pos L n = 6400 * (L 1).val + 3200 * (L 0).val + 102400 * n := by
  have := (valid_iff L n).mp h; unfold pos wid at *; omega

omit [FloatOps F] in
theorem in_inb (L : grid6.Coords) (n : ℕ) : ∀ a, (![6, pos L n] : Fin 2 → ℕ) a + S1x3200.size a ≤ S22x1600000.size a := by
  intro a; fin_cases a
  · show 6 + 1 ≤ 22; omega
  · show pos L n + 3200 ≤ 1600000; unfold pos; omega
omit [FloatOps F] in
theorem out_inb (L : grid6.Coords) (n : ℕ) : ∀ a, (![pos L n] : Fin 1 → ℕ) a + S3200.size a ≤ S1600000.size a := by
  intro a; fin_cases a
  show pos L n + 3200 ≤ 1600000; unfold pos; omega

/-- Piece `n` of row 6 of the transposed argument, and piece `n` of the flat result, as memrefs of the tile. -/
abbrev inM (L : grid6.Coords) (n : ℕ) : Memref sig .scVector .hbm S1x3200 .f32 :=
  (xtW).slice (Rect.unit (s := S22x1600000) ![6, pos L n] S1x3200.size (in_inb L n)) (fun _ => rfl)
abbrev outM (L : grid6.Coords) (n : ℕ) : Memref sig .scVector .hbm S3200 .f32 :=
  (oW).slice (Rect.unit (s := S1600000) ![pos L n] S3200.size (out_inb L n)) (fun _ => rfl)

/-! The program's own slices are these pieces: by the closed forms of its offset functions. -/

omit [FloatOps F] in
theorem off2 {a b : ℕ} (h : a = b) : (![6, a] : Fin 2 → ℕ) = ![6, b] := by rw [h]
omit [FloatOps F] in
theorem off1' {a b : ℕ} (h : a = b) : (![a] : Fin 1 → ℕ) = ![b] := by rw [h]

omit [FloatOps F] in
theorem off_in0 (L : grid6.Coords) (h : valid L 0) : k6_off1 L 0#32 = ![6, pos L 0] :=
  (k6_off1_eq L 0).trans (off2 (by rw [pos_valid h]; simp))
omit [FloatOps F] in
theorem off_in1 (L : grid6.Coords) (h : valid L 1) : k6_off1 L 32#32 = ![6, pos L 1] :=
  (k6_off1_eq L 1).trans (off2 (by rw [pos_valid h]; simp))
omit [FloatOps F] in
theorem off_6 (L : grid6.Coords) (t : Fin k6_t1_loop.trips) (h : valid L (2 * t.val + 2)) : k6_off6 L t = ![6, pos L (2 * t.val + 2)] :=
  (k6_off6_eq L t).trans (off2 (by rw [pos_valid h]; omega))
omit [FloatOps F] in
theorem off_11 (L : grid6.Coords) (t : Fin k6_t1_loop.trips) (h : valid L (2 * t.val + 3)) : k6_off11 L t = ![6, pos L (2 * t.val + 3)] :=
  (k6_off11_eq L t).trans (off2 (by rw [pos_valid h]; omega))
omit [FloatOps F] in
theorem off_5 (L : grid6.Coords) (t : Fin k6_t1_loop.trips) (h : valid L (2 * t.val)) : k6_off5 L t = ![pos L (2 * t.val)] :=
  (k6_off5_eq L t).trans (off1' (by rw [pos_valid h]; omega))
omit [FloatOps F] in
theorem off_10 (L : grid6.Coords) (t : Fin k6_t1_loop.trips) (h : valid L (2 * t.val + 1)) : k6_off10 L t = ![pos L (2 * t.val + 1)] :=
  (k6_off10_eq L t).trans (off1' (by rw [pos_valid h]; omega))

/-- Holding a 1 × 3200 window of the transposed argument, or a 3200 window of the result, by exactly its elements
    says the same whichever way the window's offsets are spelt. -/
theorem in_congr {off off' : Fin 2 → ℕ} (h : off = off') (p : ∀ a, off a + S1x3200.size a ≤ S22x1600000.size a)
    (p' : ∀ a, off' a + S1x3200.size a ≤ S22x1600000.size a) (f : Buf (Elt F) ((xtW).view.loc (thr d L))) :
    (((xtW).slice (Rect.unit (s := S22x1600000) off S1x3200.size p) (fun _ => rfl)).view.loc (thr d L)
        ↦[((xtW).slice (Rect.unit (s := S22x1600000) off S1x3200.size p) (fun _ => rfl)).view.set]{fullShare} f : sProp 𝕄)
      = (((xtW).slice (Rect.unit (s := S22x1600000) off' S1x3200.size p') (fun _ => rfl)).view.loc (thr d L)
        ↦[((xtW).slice (Rect.unit (s := S22x1600000) off' S1x3200.size p') (fun _ => rfl)).view.set]{fullShare} f) := by
  subst h; rfl
theorem out_congr {off off' : Fin 1 → ℕ} (h : off = off') (p : ∀ a, off a + S3200.size a ≤ S1600000.size a)
    (p' : ∀ a, off' a + S3200.size a ≤ S1600000.size a) (f : Buf (Elt F) ((oW).view.loc (thr d L))) :
    (((oW).slice (Rect.unit (s := S1600000) off S3200.size p) (fun _ => rfl)).view.loc (thr d L)
        ↦[((oW).slice (Rect.unit (s := S1600000) off S3200.size p) (fun _ => rfl)).view.set]{fullShare} f : sProp 𝕄)
      = (((oW).slice (Rect.unit (s := S1600000) off' S3200.size p') (fun _ => rfl)).view.loc (thr d L)
        ↦[((oW).slice (Rect.unit (s := S1600000) off' S3200.size p') (fun _ => rfl)).view.set]{fullShare} f) := by
  subst h; rfl

/-! The printed conditions, as facts about the trip and the tile. -/

omit [FloatOps F] in
theorem trips1 : k6_t1_loop.trips = 8 := by decide
omit [FloatOps F] in
theorem cond1_iff : ∀ (t : Fin k6_t1_loop.trips), k6_cond1 t = 1#1 ↔ 1 ≤ t.val := by decide +kernel
omit [FloatOps F] in
theorem cond2_iff : ∀ (L : grid6.Coords) (t : Fin k6_t1_loop.trips), k6_cond2 L t = 1#1 := by decide +kernel
omit [FloatOps F] in
theorem cond3_iff : ∀ (L : grid6.Coords) (t : Fin k6_t1_loop.trips), k6_cond3 L t = 1#1 ↔ t.val ≤ 6 := by decide +kernel
omit [FloatOps F] in
theorem cond4_iff : ∀ (t : Fin k6_t1_loop.trips), k6_cond4 t = 1#1 ↔ 1 ≤ t.val := by decide +kernel
omit [FloatOps F] in
theorem cond5_iff : ∀ (L : grid6.Coords) (t : Fin k6_t1_loop.trips), k6_cond5 L t = 1#1 ↔ (t.val ≤ 6 ∨ big L) := by decide +kernel
omit [FloatOps F] in
theorem cond6_iff : ∀ (L : grid6.Coords) (t : Fin k6_t1_loop.trips), k6_cond6 L t = 1#1 ↔ (t.val ≤ 5 ∨ (t.val = 6 ∧ big L)) := by decide +kernel
omit [FloatOps F] in
theorem cond7_iff : ∀ (L : grid6.Coords), k6_cond7 L = 1#1 := by decide +kernel
omit [FloatOps F] in
theorem cond8_iff : ∀ (L : grid6.Coords), k6_cond8 L = 1#1 ↔ big L := by decide +kernel

variable (O : CellTallies nD τ sig (HIx 22)) (W : Waits sig (HIx 22))
variable (fx : Buf (Elt F) ((xtW).view.loc (thr d L)))

abbrev NN : ℕ := 102400

/-- The 3200-element window of a flat staging buffer that a piece is written out from. -/
abbrev stg (a : Memref sig .scVector .vmem S25600 .f32) : Memref sig .scVector .vmem S3200 .f32 :=
  a.slice (Rect.unit (s := S25600) ![0] S3200.size inb_S25600_S3200_0) (fun _ => rfl)

/-- Piece `n` of the argument row held by exactly its elements, at the argument's contents; piece `n` of the result
    held by exactly its elements, at some contents. -/
abbrev xtPiece (n : ℕ) : sProp 𝕄 := (inM L n).view.loc (thr d L) ↦[(inM L n).view.set]{fullShare} fx
abbrev oPiece (n : ℕ) : sProp 𝕄 := iprop(∃ f, (outM L n).view.loc (thr d L) ↦[(outM L n).view.set]{fullShare} f)

/-- The lane-copy loop of a slot: the staging row keeps its contents, the flat staging buffer holds some contents. -/
def laneInv0 (g4 : Buf (Elt F) ((a4).view.loc (thr d L))) (_ : ℕ) (_ : PUnit) : sProp 𝕄 :=
  iprop(((a4).view.loc (thr d L) ↦{fullShare} g4) ∗ (∃ g, (a6).view.loc (thr d L) ↦{fullShare} g))
def laneInv1 (g5 : Buf (Elt F) ((a5).view.loc (thr d L))) (_ : ℕ) (_ : PUnit) : sProp 𝕄 :=
  iprop(((a5).view.loc (thr d L) ↦{fullShare} g5) ∗ (∃ g, (a7).view.loc (thr d L) ↦{fullShare} g))

/-- A fetch slot before trip work on piece `n`: the piece's fetch in flight (it will hand back the staging row at some
    contents, and the piece), or, when there is no such piece, the slot idle. -/
def inSlot (a : Memref sig .scVector .vmem S8x3200 .f32) (sm : DmaSem sig) (n : ℕ) : sProp 𝕄 :=
  if valid L n then
    iprop(∃ g, Transfers.Flight countersEmb (thr d L) (SemLoc.dma sm) (default : HIx 22) NN
      iprop((a.view.loc (thr d L) ↦{fullShare} g) ∗ xtPiece d L fx n))
  else iprop((∃ g, a.view.loc (thr d L) ↦{fullShare} g) ∗ semVal (thr d L, SemLoc.dma sm) 0)

/-- A write-out slot before trip work on piece `m`: piece `m - 2`'s write-out in flight (it will hand back that piece
    of the result at some contents, and the staging window), the rest of the staging buffer beside it; or idle. -/
def outSlot (a : Memref sig .scVector .vmem S25600 .f32) (sm : DmaSem sig) (m : ℕ) : sProp 𝕄 :=
  if 2 ≤ m ∧ valid L (m - 2) then
    iprop(∃ g, Transfers.Flight countersEmb (thr d L) (SemLoc.dma sm) (default : HIx 22) NN
        iprop(oPiece d L (m - 2) ∗ ((stg a).view.loc (thr d L) ↦[(stg a).view.set]{fullShare} g))
      ∗ (a.view.loc (thr d L) ↦[Finset.univ \ (stg a).view.set]{fullShare} g))
  else iprop((∃ g, a.view.loc (thr d L) ↦{fullShare} g) ∗ semVal (thr d L, SemLoc.dma sm) 0)

/-- Piece `n` when it exists, nothing otherwise. -/
def xP (n : ℕ) : sProp 𝕄 := if valid L n then xtPiece d L fx n else iprop(emp)
def oP (n : ℕ) : sProp 𝕄 := if valid L n then oPiece d L n else iprop(emp)

/-- What the tile holds outside the slots before trip `t`: every piece of the argument row but those being fetched
    (`2t`, `2t + 1`), every piece of the result but those being written out (`2t - 2`, `2t - 1`). -/
def xSet (t : ℕ) : Finset ℕ := (Finset.range 18).filter fun n => n ≠ 2 * t ∧ n ≠ 2 * t + 1
def oSet (t : ℕ) : Finset ℕ := (Finset.range 18).filter fun n => n + 2 ≠ 2 * t ∧ n + 2 ≠ 2 * t + 1

def inv (t : ℕ) (_ : PUnit) : sProp 𝕄 :=
  iprop(Transfers.MayWaits (thr d L) (none : HIx 22) O
    ∗ (∃ W', ⌜∀ p ∈ W', p ∈ W ∨ p.2 = none⌝ ∗ owes (thr d L) O W')
    ∗ bigSep (xSet t) (xP d L fx) ∗ bigSep (oSet t) (oP d L)
    ∗ inSlot d L fx a4 cc6_scratch4.sem (2 * t) ∗ outSlot d L a6 cc6_scratch6.sem (2 * t)
    ∗ inSlot d L fx a5 cc6_scratch5.sem (2 * t + 1) ∗ outSlot d L a7 cc6_scratch7.sem (2 * t + 1))

omit [FloatOps F] in
theorem two_out {Φ : ℕ → sProp 𝕄} {s : Finset ℕ} {a b : ℕ} (ha : a ∈ s) (hb : b ∈ s) (hab : a ≠ b) :
    bigSep s Φ = iprop(Φ a ∗ Φ b ∗ bigSep ((s.erase a).erase b) Φ) := by
  rw [SparseCore.bigSep_erase' ha, SparseCore.bigSep_erase' (Finset.mem_erase.mpr ⟨fun e => hab e.symm, hb⟩)]

omit [FloatOps F] in
theorem range18_split : (Finset.range 18) = insert 0 (insert 1 (xSet 0)) := by decide

theorem xRange_split (v0 : valid L 0) (v1 : valid L 1) :
    bigSep (Finset.range 18) (xP d L fx) = iprop(xtPiece d L fx 0 ∗ xtPiece d L fx 1 ∗ bigSep (xSet 0) (xP d L fx)) := by
  rw [range18_split, SparseCore.bigSep_insert' (by decide), SparseCore.bigSep_insert' (by decide)]
  unfold xP; rw [if_pos v0, if_pos v1]
omit [FloatOps F] in
theorem oSet_zero : oSet 0 = Finset.range 18 := by decide

theorem inSlot_pos {a : Memref sig .scVector .vmem S8x3200 .f32} {sm : DmaSem sig} {n : ℕ} (v : valid L n) :
    inSlot d L fx a sm n = iprop(∃ g, Transfers.Flight countersEmb (thr d L) (SemLoc.dma sm) (default : HIx 22) NN
      iprop((a.view.loc (thr d L) ↦{fullShare} g) ∗ xtPiece d L fx n)) := by unfold inSlot; rw [if_pos v]
theorem inSlot_neg {a : Memref sig .scVector .vmem S8x3200 .f32} {sm : DmaSem sig} {n : ℕ} (v : ¬ valid L n) :
    inSlot d L fx a sm n = iprop((∃ g, a.view.loc (thr d L) ↦{fullShare} g) ∗ semVal (thr d L, SemLoc.dma sm) 0) := by
  unfold inSlot; rw [if_neg v]
theorem outSlot_pos {a : Memref sig .scVector .vmem S25600 .f32} {sm : DmaSem sig} {m : ℕ} (h : 2 ≤ m ∧ valid L (m - 2)) :
    outSlot (F := F) d L a sm m = iprop(∃ g, Transfers.Flight countersEmb (thr d L) (SemLoc.dma sm) (default : HIx 22) NN
        iprop(oPiece (F := F) d L (m - 2) ∗ ((stg a).view.loc (thr d L) ↦[(stg a).view.set]{fullShare} g))
      ∗ (a.view.loc (thr d L) ↦[Finset.univ \ (stg a).view.set]{fullShare} g)) := by unfold outSlot; rw [if_pos h]
theorem outSlot_neg {a : Memref sig .scVector .vmem S25600 .f32} {sm : DmaSem sig} {m : ℕ} (h : ¬ (2 ≤ m ∧ valid L (m - 2))) :
    outSlot (F := F) d L a sm m = iprop((∃ g, a.view.loc (thr d L) ↦{fullShare} g) ∗ semVal (thr d L, SemLoc.dma sm) 0) := by
  unfold outSlot; rw [if_neg h]

/-- A fetch in flight, its source window spelt by any offsets equal to piece `n`'s, fills the fetch slot for `n`. -/
theorem fl_in {off : Fin 2 → ℕ} {n : ℕ} (h : off = ![6, pos L n]) (p : ∀ a, off a + S1x3200.size a ≤ S22x1600000.size a) (v : valid L n)
    (a : Memref sig .scVector .vmem S8x3200 .f32) (sm : DmaSem sig) :
    (iprop(∃ g, Transfers.Flight countersEmb (thr d L) (SemLoc.dma sm) (default : HIx 22) NN
        iprop((a.view.loc (thr d L) ↦{fullShare} g)
          ∗ (((xtW).slice (Rect.unit (s := S22x1600000) off S1x3200.size p) (fun _ => rfl)).view.loc (thr d L)
              ↦[((xtW).slice (Rect.unit (s := S22x1600000) off S1x3200.size p) (fun _ => rfl)).view.set]{fullShare} fx))) : sProp 𝕄)
      ⊢ inSlot d L fx a sm n := by
  rw [inSlot_pos d L fx v]
  iintro ⟨%g, H⟩
  have hD : (iprop((a.view.loc (thr d L) ↦{fullShare} g)
          ∗ (((xtW).slice (Rect.unit (s := S22x1600000) off S1x3200.size p) (fun _ => rfl)).view.loc (thr d L)
              ↦[((xtW).slice (Rect.unit (s := S22x1600000) off S1x3200.size p) (fun _ => rfl)).view.set]{fullShare} fx)) : sProp 𝕄)
      ⊢ iprop((a.view.loc (thr d L) ↦{fullShare} g) ∗ xtPiece d L fx n) := by
    iintro ⟨H1, H2⟩
    isplitl [H1]; · iexact H1
    iapply (Entails.of_eq (in_congr d L h p (in_inb L n) fx)); iexact H2
  iexists g
  iapply (Transfers.Flight_mono countersEmb (thr d L) hD); iexact H

/-- A write-out in flight, its destination window spelt by any offsets equal to piece `n`'s, with the rest of the
    staging buffer, fills the write-out slot for `n + 2`. -/
theorem fl_out {off : Fin 1 → ℕ} {n : ℕ} (h : off = ![pos L n]) (p : ∀ a, off a + S3200.size a ≤ S1600000.size a) (v : valid L n)
    (a : Memref sig .scVector .vmem S25600 .f32) (sm : DmaSem sig) :
    (iprop(∃ (f : Buf (Elt F) ((oW).view.loc (thr d L))) (g : Buf (Elt F) (a.view.loc (thr d L))), Transfers.Flight countersEmb (thr d L) (SemLoc.dma sm) (default : HIx 22) NN
        iprop((((oW).slice (Rect.unit (s := S1600000) off S3200.size p) (fun _ => rfl)).view.loc (thr d L)
              ↦[((oW).slice (Rect.unit (s := S1600000) off S3200.size p) (fun _ => rfl)).view.set]{fullShare} f)
          ∗ ((stg a).view.loc (thr d L) ↦[(stg a).view.set]{fullShare} g))
        ∗ (a.view.loc (thr d L) ↦[Finset.univ \ (stg a).view.set]{fullShare} g)) : sProp 𝕄)
      ⊢ outSlot (F := F) d L a sm (n + 2) := by
  rw [outSlot_pos (F := F) d L (m := n + 2) ⟨by omega, by simpa using v⟩]
  iintro ⟨%f, %g, H, R⟩
  have hD : (iprop((((oW).slice (Rect.unit (s := S1600000) off S3200.size p) (fun _ => rfl)).view.loc (thr d L)
              ↦[((oW).slice (Rect.unit (s := S1600000) off S3200.size p) (fun _ => rfl)).view.set]{fullShare} f)
          ∗ ((stg a).view.loc (thr d L) ↦[(stg a).view.set]{fullShare} g)) : sProp 𝕄)
      ⊢ iprop(oPiece (F := F) d L (n + 2 - 2) ∗ ((stg a).view.loc (thr d L) ↦[(stg a).view.set]{fullShare} g)) := by
    rw [Nat.add_sub_cancel]
    iintro ⟨H1, H2⟩
    isplitl [H1]
    · iexists f; iapply (Entails.of_eq (out_congr d L h p (out_inb L n) f)); iexact H1
    · iexact H2
  iexists g
  isplitl [H]
  · iapply (Transfers.Flight_mono countersEmb (thr d L) hD); iexact H
  · iexact R

/-! The pieces outside the slots, from one trip to the next. -/
def xCore (k : ℕ) : Finset ℕ := (Finset.range 18).filter fun n => n ≠ 2 * k ∧ n ≠ 2 * k + 1 ∧ n ≠ 2 * k + 2 ∧ n ≠ 2 * k + 3
def oCore (k : ℕ) : Finset ℕ := (Finset.range 18).filter fun n => n + 2 ≠ 2 * k ∧ n + 2 ≠ 2 * k + 1 ∧ n ≠ 2 * k ∧ n ≠ 2 * k + 1

omit [FloatOps F] in
theorem xSet_out (Φ : ℕ → sProp 𝕄) (k : ℕ) (hk : k < 8) : bigSep (xSet k) Φ = iprop(Φ (2 * k + 2) ∗ Φ (2 * k + 3) ∗ bigSep (xCore k) Φ) := by
  have e : ((xSet k).erase (2 * k + 2)).erase (2 * k + 3) = xCore k := by
    ext n; simp only [xSet, xCore, Finset.mem_erase, Finset.mem_filter, Finset.mem_range]; omega
  rw [← e]; exact two_out (by simp only [xSet, Finset.mem_filter, Finset.mem_range]; omega) (by simp only [xSet, Finset.mem_filter, Finset.mem_range]; omega) (by omega)
omit [FloatOps F] in
theorem xSet_in (Φ : ℕ → sProp 𝕄) (k : ℕ) (hk : k < 8) : bigSep (xSet (k + 1)) Φ = iprop(Φ (2 * k) ∗ Φ (2 * k + 1) ∗ bigSep (xCore k) Φ) := by
  have e : ((xSet (k + 1)).erase (2 * k)).erase (2 * k + 1) = xCore k := by
    ext n; simp only [xSet, xCore, Finset.mem_erase, Finset.mem_filter, Finset.mem_range]; omega
  rw [← e]; exact two_out (by simp only [xSet, Finset.mem_filter, Finset.mem_range]; omega) (by simp only [xSet, Finset.mem_filter, Finset.mem_range]; omega) (by omega)
omit [FloatOps F] in
theorem oSet_out (Φ : ℕ → sProp 𝕄) (k : ℕ) (hk : k < 8) : bigSep (oSet k) Φ = iprop(Φ (2 * k) ∗ Φ (2 * k + 1) ∗ bigSep (oCore k) Φ) := by
  have e : ((oSet k).erase (2 * k)).erase (2 * k + 1) = oCore k := by
    ext n; simp only [oSet, oCore, Finset.mem_erase, Finset.mem_filter, Finset.mem_range]; omega
  rw [← e]; exact two_out (by simp only [oSet, Finset.mem_filter, Finset.mem_range]; omega) (by simp only [oSet, Finset.mem_filter, Finset.mem_range]; omega) (by omega)
omit [FloatOps F] in
theorem oSet_in (Φ : ℕ → sProp 𝕄) (k : ℕ) (hk : k < 8) (hk1 : 1 ≤ k) :
    bigSep (oSet (k + 1)) Φ = iprop(Φ (2 * k - 2) ∗ Φ (2 * k - 1) ∗ bigSep (oCore k) Φ) := by
  have e : ((oSet (k + 1)).erase (2 * k - 2)).erase (2 * k - 1) = oCore k := by
    ext n; simp only [oSet, oCore, Finset.mem_erase, Finset.mem_filter, Finset.mem_range]; omega
  rw [← e]; exact two_out (by simp only [oSet, Finset.mem_filter, Finset.mem_range]; omega) (by simp only [oSet, Finset.mem_filter, Finset.mem_range]; omega) (by omega)

theorem xP_pos {n : ℕ} (v : valid L n) : xP d L fx n = xtPiece d L fx n := if_pos v
theorem oP_pos {n : ℕ} (v : valid L n) : oP (F := F) d L n = oPiece (F := F) d L n := if_pos v
theorem xP_neg {n : ℕ} (v : ¬ valid L n) : xP d L fx n = iprop(emp) := if_neg v
theorem oP_neg {n : ℕ} (v : ¬ valid L n) : oP (F := F) d L n = iprop(emp) := if_neg v

/-- Piece `n` of the result at its final contents: row 6 of the transposed argument. -/
def oQ (n : ℕ) : sProp 𝕄 :=
  if valid L n then (outM L n).view.loc (thr d L) ↦[(outM L n).view.set]{fullShare} (Cert.Spec.row 6 fx) else iprop(emp)

/-- What a tile is handed for the call: its pieces of row 6 of the transposed argument, at the argument's contents, and
    its pieces of the result at some contents. What it hands back: the same pieces of the argument, and its pieces of
    the result holding the row. -/
def goRes : sProp 𝕄 := iprop(bigSep (Finset.range 18) (xP d L fx) ∗ bigSep (Finset.range 18) (oP (F := F) d L))
def tdRes : sProp 𝕄 := iprop(bigSep (Finset.range 18) (xP d L fx) ∗ bigSep (Finset.range 18) (oQ d L fx))

end Tile

end Cert.Proof.TileB6

end
-- ==== Proof.TileB7Defs.lean ====
/-
  One vector subcore's task of copy kernel 7 (counting from 0): definitions. The task moves its pieces of row 7 of the
  transposed argument (pieces of 3200 consecutive elements, piece number 2·s + c + 32·n for the subcore (c, s) and
  n = 0, 1, … while that number is below 500) into the flat result: each piece is fetched into a staging row, copied
  16 lanes at a time into a flat staging buffer, and written out, two pieces in flight at a time. Here: the pieces as
  memrefs, the program's own spellings of them, the printed conditions as facts about the trip, the two slots' states
  between trips, and what the tile holds outside the slots.
-/
import proofs.«206869_g37898791420194_cont_8to1_b_558_20_alg».proof.Defs
import Idealize.ShloMosaic.Lib.SparseCore.Launch
import Idealize.ShloMosaic.Lib.StableHlo.Run
import Idealize.ShloMosaic.Lib.Pipeline.Kit
import Idealize.ShloMosaic.Lib.Tactic
import proofs.«206869_g37898791420194_cont_8to1_b_558_20_alg».proof.Proof.Gen.Kernel
import proofs.«206869_g37898791420194_cont_8to1_b_558_20_alg».proof.Proof.Gen.Kernel.Skeleton
import proofs.«206869_g37898791420194_cont_8to1_b_558_20_alg».proof.Proof.Spec

noncomputable section

namespace Cert.Proof.TileB7

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

abbrev ΛP : Labels := Pipeline.Sig Λ₀ (Fin 0) fun p => (pcfgs (F := F) p).Adm
abbrev K : SparseCore.Cfg τ sig (ΛP (F := F)) 22 := sc (F := F)
abbrev 𝒱₀ : Variants := Variants.none

abbrev UH : Type := URounds (GSem nD τ sig) ℕ
abbrev UU : Type := UH × Counters

local notation "𝕄" => MT nD τ sig (HIx 22) (Elt F) ℕ UU ℕ

local notation "xtW" => (Memref.whole Cert.Kernel.main_v0_scv : Memref Cert.Kernel.sig Kind.scVector Space.hbm Cert.Kernel.S22x1600000 EltTy.f32)
local notation "oW" => (Memref.whole Cert.Kernel.main_v8_scv : Memref Cert.Kernel.sig Kind.scVector Space.hbm Cert.Kernel.S1600000 EltTy.f32)
local notation "a4" => (Memref.whole Cert.Kernel.cc7_scratch0 : Memref Cert.Kernel.sig Kind.scVector Space.vmem Cert.Kernel.S8x3200 EltTy.f32)
local notation "a5" => (Memref.whole Cert.Kernel.cc7_scratch1 : Memref Cert.Kernel.sig Kind.scVector Space.vmem Cert.Kernel.S8x3200 EltTy.f32)
local notation "a6" => (Memref.whole Cert.Kernel.cc7_scratch2 : Memref Cert.Kernel.sig Kind.scVector Space.vmem Cert.Kernel.S25600 EltTy.f32)
local notation "a7" => (Memref.whole Cert.Kernel.cc7_scratch3 : Memref Cert.Kernel.sig Kind.scVector Space.vmem Cert.Kernel.S25600 EltTy.f32)

variable [FloatOps F]

section Tile

variable (d : Dev nD) (L : grid7.Coords)

abbrev cV (L : grid7.Coords) : Fin τ.nSC := (L 0).castLE hcore7
abbrev jV (L : grid7.Coords) : Fin τ.nSub := (L 1).castLE hsub7
abbrev thr (d : Dev nD) (L : grid7.Coords) : Thread nD τ := V d (cV L) (jV L)

/-- The tile's number 2·s + c, and whether it has sixteen pieces (numbers below 20) or fifteen. -/
abbrev wid (L : grid7.Coords) : ℕ := 2 * (L 1).val + (L 0).val
abbrev big (L : grid7.Coords) : Prop := wid L < 20

omit [FloatOps F] in
theorem wid_lt (L : grid7.Coords) : wid L < 32 := by
  have h0 : (L 0).val < 2 := (L 0).isLt
  have h1 : (L 1).val < 16 := (L 1).isLt
  unfold wid; omega

/-- Piece `n` of the tile exists: `n < 15`, or `n = 15` on a tile with sixteen pieces. It is the piece number
    `wid + 32·n < 500` of the row. -/
def valid (L : grid7.Coords) (n : ℕ) : Prop := n < 15 ∨ (n = 15 ∧ big L)
instance (L : grid7.Coords) (n : ℕ) : Decidable (valid L n) := by unfold valid big; infer_instance

omit [FloatOps F] in
theorem valid_iff (L : grid7.Coords) (n : ℕ) : valid L n ↔ wid L + 32 * n < 500 := by
  have := wid_lt L; unfold valid big; omega

/-- Where piece `n` starts in the row (clamped to the last piece of the row, so that the rectangle is in bounds for
    every `n`; for a valid piece the clamp is idle). -/
abbrev pos (L : grid7.Coords) (n : ℕ) : ℕ := 3200 * min (wid L + 32 * n) 499

omit [FloatOps F] in
theorem pos_valid {L : grid7.Coords} {n : ℕ} (h : valid L n) : pos L n = 6400 * (L 1).val + 3200 * (L 0).val + 102400 * n := by
  have := (valid_iff L n).mp h; unfold pos wid at *; omega

omit [FloatOps F] in
theorem in_inb (L : grid7.Coords) (n : ℕ) : ∀ a, (![7, pos L n] : Fin 2 → ℕ) a + S1x3200.size a ≤ S22x1600000.size a := by
  intro a; fin_cases a
  · show 7 + 1 ≤ 22; omega
  · show pos L n + 3200 ≤ 1600000; unfold pos; omega
omit [FloatOps F] in
theorem out_inb (L : grid7.Coords) (n : ℕ) : ∀ a, (![pos L n] : Fin 1 → ℕ) a + S3200.size a ≤ S1600000.size a := by
  intro a; fin_cases a
  show pos L n + 3200 ≤ 1600000; unfold pos; omega

/-- Piece `n` of row 7 of the transposed argument, and piece `n` of the flat result, as memrefs of the tile. -/
abbrev inM (L : grid7.Coords) (n : ℕ) : Memref sig .scVector .hbm S1x3200 .f32 :=
  (xtW).slice (Rect.unit (s := S22x1600000) ![7, pos L n] S1x3200.size (in_inb L n)) (fun _ => rfl)
abbrev outM (L : grid7.Coords) (n : ℕ) : Memref sig .scVector .hbm S3200 .f32 :=
  (oW).slice (Rect.unit (s := S1600000) ![pos L n] S3200.size (out_inb L n)) (fun _ => rfl)

/-! The program's own slices are these pieces: by the closed forms of its offset functions. -/

omit [FloatOps F] in
theorem off2 {a b : ℕ} (h : a = b) : (![7, a] : Fin 2 → ℕ) = ![7, b] := by rw [h]
omit [FloatOps F] in
theorem off1' {a b : ℕ} (h : a = b) : (![a] : Fin 1 → ℕ) = ![b] := by rw [h]

omit [FloatOps F] in
theorem off_in0 (L : grid7.Coords) (h : valid L 0) : k7_off1 L 0#32 = ![7, pos L 0] :=
  (k7_off1_eq L 0).trans (off2 (by rw [pos_valid h]; simp))
omit [FloatOps F] in
theorem off_in1 (L : grid7.Coords) (h : valid L 1) : k7_off1 L 32#32 = ![7, pos L 1] :=
  (k7_off1_eq L 1).trans (off2 (by rw [pos_valid h]; simp))
omit [FloatOps F] in
theorem off_6 (L : grid7.Coords) (t : Fin k7_t1_loop.trips) (h : valid L (2 * t.val + 2)) : k7_off6 L t = ![7, pos L (2 * t.val + 2)] :=
  (k7_off6_eq L t).trans (off2 (by rw [pos_valid h]; omega))
omit [FloatOps F] in
theorem off_11 (L : grid7.Coords) (t : Fin k7_t1_loop.trips) (h : valid L (2 * t.val + 3)) : k7_off11 L t = ![7, pos L (2 * t.val + 3)] :=
  (k7_off11_eq L t).trans (off2 (by rw [pos_valid h]; omega))
omit [FloatOps F] in
theorem off_5 (L : grid7.Coords) (t : Fin k7_t1_loop.trips) (h : valid L (2 * t.val)) : k7_off5 L t = ![pos L (2 * t.val)] :=
  (k7_off5_eq L t).trans (off1' (by rw [pos_valid h]; omega))
omit [FloatOps F] in
theorem off_10 (L : grid7.Coords) (t : Fin k7_t1_loop.trips) (h : valid L (2 * t.val + 1)) : k7_off10 L t = ![pos L (2 * t.val + 1)] :=
  (k7_off10_eq L t).trans (off1' (by rw [pos_valid h]; omega))

/-- Holding a 1 × 3200 window of the transposed argument, or a 3200 window of the result, by exactly its elements
    says the same whichever way the window's offsets are spelt. -/
theorem in_congr {off off' : Fin 2 → ℕ} (h : off = off') (p : ∀ a, off a + S1x3200.size a ≤ S22x1600000.size a)
    (p' : ∀ a, off' a + S1x3200.size a ≤ S22x1600000.size a) (f : Buf (Elt F) ((xtW).view.loc (thr d L))) :
    (((xtW).slice (Rect.unit (s := S22x1600000) off S1x3200.size p) (fun _ => rfl)).view.loc (thr d L)
        ↦[((xtW).slice (Rect.unit (s := S22x1600000) off S1x3200.size p) (fun _ => rfl)).view.set]{fullShare} f : sProp 𝕄)
      = (((xtW).slice (Rect.unit (s := S22x1600000) off' S1x3200.size p') (fun _ => rfl)).view.loc (thr d L)
        ↦[((xtW).slice (Rect.unit (s := S22x1600000) off' S1x3200.size p') (fun _ => rfl)).view.set]{fullShare} f) := by
  subst h; rfl
theorem out_congr {off off' : Fin 1 → ℕ} (h : off = off') (p : ∀ a, off a + S3200.size a ≤ S1600000.size a)
    (p' : ∀ a, off' a + S3200.size a ≤ S1600000.size a) (f : Buf (Elt F) ((oW).view.loc (thr d L))) :
    (((oW).slice (Rect.unit (s := S1600000) off S3200.size p) (fun _ => rfl)).view.loc (thr d L)
        ↦[((oW).slice (Rect.unit (s := S1600000) off S3200.size p) (fun _ => rfl)).view.set]{fullShare} f : sProp 𝕄)
      = (((oW).slice (Rect.unit (s := S1600000) off' S3200.size p') (fun _ => rfl)).view.loc (thr d L)
        ↦[((oW).slice (Rect.unit (s := S1600000) off' S3200.size p') (fun _ => rfl)).view.set]{fullShare} f) := by
  subst h; rfl

/-! The printed conditions, as facts about the trip and the tile. -/

omit [FloatOps F] in
theorem trips1 : k7_t1_loop.trips = 8 := by decide
omit [FloatOps F] in
theorem cond1_iff : ∀ (t : Fin k7_t1_loop.trips), k7_cond1 t = 1#1 ↔ 1 ≤ t.val := by decide +kernel
omit [FloatOps F] in
theorem cond2_iff : ∀ (L : grid7.Coords) (t : Fin k7_t1_loop.trips), k7_cond2 L t = 1#1 := by decide +kernel
omit [FloatOps F] in
theorem cond3_iff : ∀ (L : grid7.Coords) (t : Fin k7_t1_loop.trips), k7_cond3 L t = 1#1 ↔ t.val ≤ 6 := by decide +kernel
omit [FloatOps F] in
theorem cond4_iff : ∀ (t : Fin k7_t1_loop.trips), k7_cond4 t = 1#1 ↔ 1 ≤ t.val := by decide +kernel
omit [FloatOps F] in
theorem cond5_iff : ∀ (L : grid7.Coords) (t : Fin k7_t1_loop.trips), k7_cond5 L t = 1#1 ↔ (t.val ≤ 6 ∨ big L) := by decide +kernel
omit [FloatOps F] in
theorem cond6_iff : ∀ (L : grid7.Coords) (t : Fin k7_t1_loop.trips), k7_cond6 L t = 1#1 ↔ (t.val ≤ 5 ∨ (t.val = 6 ∧ big L)) := by decide +kernel
omit [FloatOps F] in
theorem cond7_iff : ∀ (L : grid7.Coords), k7_cond7 L = 1#1 := by decide +kernel
omit [FloatOps F] in
theorem cond8_iff : ∀ (L : grid7.Coords), k7_cond8 L = 1#1 ↔ big L := by decide +kernel

variable (O : CellTallies nD τ sig (HIx 22)) (W : Waits sig (HIx 22))
variable (fx : Buf (Elt F) ((xtW).view.loc (thr d L)))

abbrev NN : ℕ := 102400

/-- The 3200-element window of a flat staging buffer that a piece is written out from. -/
abbrev stg (a : Memref sig .scVector .vmem S25600 .f32) : Memref sig .scVector .vmem S3200 .f32 :=
  a.slice (Rect.unit (s := S25600) ![0] S3200.size inb_S25600_S3200_0) (fun _ => rfl)

/-- Piece `n` of the argument row held by exactly its elements, at the argument's contents; piece `n` of the result
    held by exactly its elements, at some contents. -/
abbrev xtPiece (n : ℕ) : sProp 𝕄 := (inM L n).view.loc (thr d L) ↦[(inM L n).view.set]{fullShare} fx
abbrev oPiece (n : ℕ) : sProp 𝕄 := iprop(∃ f, (outM L n).view.loc (thr d L) ↦[(outM L n).view.set]{fullShare} f)

/-- The lane-copy loop of a slot: the staging row keeps its contents, the flat staging buffer holds some contents. -/
def laneInv0 (g4 : Buf (Elt F) ((a4).view.loc (thr d L))) (_ : ℕ) (_ : PUnit) : sProp 𝕄 :=
  iprop(((a4).view.loc (thr d L) ↦{fullShare} g4) ∗ (∃ g, (a6).view.loc (thr d L) ↦{fullShare} g))
def laneInv1 (g5 : Buf (Elt F) ((a5).view.loc (thr d L))) (_ : ℕ) (_ : PUnit) : sProp 𝕄 :=
  iprop(((a5).view.loc (thr d L) ↦{fullShare} g5) ∗ (∃ g, (a7).view.loc (thr d L) ↦{fullShare} g))

/-- A fetch slot before trip work on piece `n`: the piece's fetch in flight (it will hand back the staging row at some
    contents, and the piece), or, when there is no such piece, the slot idle. -/
def inSlot (a : Memref sig .scVector .vmem S8x3200 .f32) (sm : DmaSem sig) (n : ℕ) : sProp 𝕄 :=
  if valid L n then
    iprop(∃ g, Transfers.Flight countersEmb (thr d L) (SemLoc.dma sm) (default : HIx 22) NN
      iprop((a.view.loc (thr d L) ↦{fullShare} g) ∗ xtPiece d L fx n))
  else iprop((∃ g, a.view.loc (thr d L) ↦{fullShare} g) ∗ semVal (thr d L, SemLoc.dma sm) 0)

/-- A write-out slot before trip work on piece `m`: piece `m - 2`'s write-out in flight (it will hand back that piece
    of the result at some contents, and the staging window), the rest of the staging buffer beside it; or idle. -/
def outSlot (a : Memref sig .scVector .vmem S25600 .f32) (sm : DmaSem sig) (m : ℕ) : sProp 𝕄 :=
  if 2 ≤ m ∧ valid L (m - 2) then
    iprop(∃ g, Transfers.Flight countersEmb (thr d L) (SemLoc.dma sm) (default : HIx 22) NN
        iprop(oPiece d L (m - 2) ∗ ((stg a).view.loc (thr d L) ↦[(stg a).view.set]{fullShare} g))
      ∗ (a.view.loc (thr d L) ↦[Finset.univ \ (stg a).view.set]{fullShare} g))
  else iprop((∃ g, a.view.loc (thr d L) ↦{fullShare} g) ∗ semVal (thr d L, SemLoc.dma sm) 0)

/-- Piece `n` when it exists, nothing otherwise. -/
def xP (n : ℕ) : sProp 𝕄 := if valid L n then xtPiece d L fx n else iprop(emp)
def oP (n : ℕ) : sProp 𝕄 := if valid L n then oPiece d L n else iprop(emp)

/-- What the tile holds outside the slots before trip `t`: every piece of the argument row but those being fetched
    (`2t`, `2t + 1`), every piece of the result but those being written out (`2t - 2`, `2t - 1`). -/
def xSet (t : ℕ) : Finset ℕ := (Finset.range 18).filter fun n => n ≠ 2 * t ∧ n ≠ 2 * t + 1
def oSet (t : ℕ) : Finset ℕ := (Finset.range 18).filter fun n => n + 2 ≠ 2 * t ∧ n + 2 ≠ 2 * t + 1

def inv (t : ℕ) (_ : PUnit) : sProp 𝕄 :=
  iprop(Transfers.MayWaits (thr d L) (none : HIx 22) O
    ∗ (∃ W', ⌜∀ p ∈ W', p ∈ W ∨ p.2 = none⌝ ∗ owes (thr d L) O W')
    ∗ bigSep (xSet t) (xP d L fx) ∗ bigSep (oSet t) (oP d L)
    ∗ inSlot d L fx a4 cc7_scratch4.sem (2 * t) ∗ outSlot d L a6 cc7_scratch6.sem (2 * t)
    ∗ inSlot d L fx a5 cc7_scratch5.sem (2 * t + 1) ∗ outSlot d L a7 cc7_scratch7.sem (2 * t + 1))

omit [FloatOps F] in
theorem two_out {Φ : ℕ → sProp 𝕄} {s : Finset ℕ} {a b : ℕ} (ha : a ∈ s) (hb : b ∈ s) (hab : a ≠ b) :
    bigSep s Φ = iprop(Φ a ∗ Φ b ∗ bigSep ((s.erase a).erase b) Φ) := by
  rw [SparseCore.bigSep_erase' ha, SparseCore.bigSep_erase' (Finset.mem_erase.mpr ⟨fun e => hab e.symm, hb⟩)]

omit [FloatOps F] in
theorem range18_split : (Finset.range 18) = insert 0 (insert 1 (xSet 0)) := by decide

theorem xRange_split (v0 : valid L 0) (v1 : valid L 1) :
    bigSep (Finset.range 18) (xP d L fx) = iprop(xtPiece d L fx 0 ∗ xtPiece d L fx 1 ∗ bigSep (xSet 0) (xP d L fx)) := by
  rw [range18_split, SparseCore.bigSep_insert' (by decide), SparseCore.bigSep_insert' (by decide)]
  unfold xP; rw [if_pos v0, if_pos v1]
omit [FloatOps F] in
theorem oSet_zero : oSet 0 = Finset.range 18 := by decide

theorem inSlot_pos {a : Memref sig .scVector .vmem S8x3200 .f32} {sm : DmaSem sig} {n : ℕ} (v : valid L n) :
    inSlot d L fx a sm n = iprop(∃ g, Transfers.Flight countersEmb (thr d L) (SemLoc.dma sm) (default : HIx 22) NN
      iprop((a.view.loc (thr d L) ↦{fullShare} g) ∗ xtPiece d L fx n)) := by unfold inSlot; rw [if_pos v]
theorem inSlot_neg {a : Memref sig .scVector .vmem S8x3200 .f32} {sm : DmaSem sig} {n : ℕ} (v : ¬ valid L n) :
    inSlot d L fx a sm n = iprop((∃ g, a.view.loc (thr d L) ↦{fullShare} g) ∗ semVal (thr d L, SemLoc.dma sm) 0) := by
  unfold inSlot; rw [if_neg v]
theorem outSlot_pos {a : Memref sig .scVector .vmem S25600 .f32} {sm : DmaSem sig} {m : ℕ} (h : 2 ≤ m ∧ valid L (m - 2)) :
    outSlot (F := F) d L a sm m = iprop(∃ g, Transfers.Flight countersEmb (thr d L) (SemLoc.dma sm) (default : HIx 22) NN
        iprop(oPiece (F := F) d L (m - 2) ∗ ((stg a).view.loc (thr d L) ↦[(stg a).view.set]{fullShare} g))
      ∗ (a.view.loc (thr d L) ↦[Finset.univ \ (stg a).view.set]{fullShare} g)) := by unfold outSlot; rw [if_pos h]
theorem outSlot_neg {a : Memref sig .scVector .vmem S25600 .f32} {sm : DmaSem sig} {m : ℕ} (h : ¬ (2 ≤ m ∧ valid L (m - 2))) :
    outSlot (F := F) d L a sm m = iprop((∃ g, a.view.loc (thr d L) ↦{fullShare} g) ∗ semVal (thr d L, SemLoc.dma sm) 0) := by
  unfold outSlot; rw [if_neg h]

/-- A fetch in flight, its source window spelt by any offsets equal to piece `n`'s, fills the fetch slot for `n`. -/
theorem fl_in {off : Fin 2 → ℕ} {n : ℕ} (h : off = ![7, pos L n]) (p : ∀ a, off a + S1x3200.size a ≤ S22x1600000.size a) (v : valid L n)
    (a : Memref sig .scVector .vmem S8x3200 .f32) (sm : DmaSem sig) :
    (iprop(∃ g, Transfers.Flight countersEmb (thr d L) (SemLoc.dma sm) (default : HIx 22) NN
        iprop((a.view.loc (thr d L) ↦{fullShare} g)
          ∗ (((xtW).slice (Rect.unit (s := S22x1600000) off S1x3200.size p) (fun _ => rfl)).view.loc (thr d L)
              ↦[((xtW).slice (Rect.unit (s := S22x1600000) off S1x3200.size p) (fun _ => rfl)).view.set]{fullShare} fx))) : sProp 𝕄)
      ⊢ inSlot d L fx a sm n := by
  rw [inSlot_pos d L fx v]
  iintro ⟨%g, H⟩
  have hD : (iprop((a.view.loc (thr d L) ↦{fullShare} g)
          ∗ (((xtW).slice (Rect.unit (s := S22x1600000) off S1x3200.size p) (fun _ => rfl)).view.loc (thr d L)
              ↦[((xtW).slice (Rect.unit (s := S22x1600000) off S1x3200.size p) (fun _ => rfl)).view.set]{fullShare} fx)) : sProp 𝕄)
      ⊢ iprop((a.view.loc (thr d L) ↦{fullShare} g) ∗ xtPiece d L fx n) := by
    iintro ⟨H1, H2⟩
    isplitl [H1]; · iexact H1
    iapply (Entails.of_eq (in_congr d L h p (in_inb L n) fx)); iexact H2
  iexists g
  iapply (Transfers.Flight_mono countersEmb (thr d L) hD); iexact H

/-- A write-out in flight, its destination window spelt by any offsets equal to piece `n`'s, with the rest of the
    staging buffer, fills the write-out slot for `n + 2`. -/
theorem fl_out {off : Fin 1 → ℕ} {n : ℕ} (h : off = ![pos L n]) (p : ∀ a, off a + S3200.size a ≤ S1600000.size a) (v : valid L n)
    (a : Memref sig .scVector .vmem S25600 .f32) (sm : DmaSem sig) :
    (iprop(∃ (f : Buf (Elt F) ((oW).view.loc (thr d L))) (g : Buf (Elt F) (a.view.loc (thr d L))), Transfers.Flight countersEmb (thr d L) (SemLoc.dma sm) (default : HIx 22) NN
        iprop((((oW).slice (Rect.unit (s := S1600000) off S3200.size p) (fun _ => rfl)).view.loc (thr d L)
              ↦[((oW).slice (Rect.unit (s := S1600000) off S3200.size p) (fun _ => rfl)).view.set]{fullShare} f)
          ∗ ((stg a).view.loc (thr d L) ↦[(stg a).view.set]{fullShare} g))
        ∗ (a.view.loc (thr d L) ↦[Finset.univ \ (stg a).view.set]{fullShare} g)) : sProp 𝕄)
      ⊢ outSlot (F := F) d L a sm (n + 2) := by
  rw [outSlot_pos (F := F) d L (m := n + 2) ⟨by omega, by simpa using v⟩]
  iintro ⟨%f, %g, H, R⟩
  have hD : (iprop((((oW).slice (Rect.unit (s := S1600000) off S3200.size p) (fun _ => rfl)).view.loc (thr d L)
              ↦[((oW).slice (Rect.unit (s := S1600000) off S3200.size p) (fun _ => rfl)).view.set]{fullShare} f)
          ∗ ((stg a).view.loc (thr d L) ↦[(stg a).view.set]{fullShare} g)) : sProp 𝕄)
      ⊢ iprop(oPiece (F := F) d L (n + 2 - 2) ∗ ((stg a).view.loc (thr d L) ↦[(stg a).view.set]{fullShare} g)) := by
    rw [Nat.add_sub_cancel]
    iintro ⟨H1, H2⟩
    isplitl [H1]
    · iexists f; iapply (Entails.of_eq (out_congr d L h p (out_inb L n) f)); iexact H1
    · iexact H2
  iexists g
  isplitl [H]
  · iapply (Transfers.Flight_mono countersEmb (thr d L) hD); iexact H
  · iexact R

/-! The pieces outside the slots, from one trip to the next. -/
def xCore (k : ℕ) : Finset ℕ := (Finset.range 18).filter fun n => n ≠ 2 * k ∧ n ≠ 2 * k + 1 ∧ n ≠ 2 * k + 2 ∧ n ≠ 2 * k + 3
def oCore (k : ℕ) : Finset ℕ := (Finset.range 18).filter fun n => n + 2 ≠ 2 * k ∧ n + 2 ≠ 2 * k + 1 ∧ n ≠ 2 * k ∧ n ≠ 2 * k + 1

omit [FloatOps F] in
theorem xSet_out (Φ : ℕ → sProp 𝕄) (k : ℕ) (hk : k < 8) : bigSep (xSet k) Φ = iprop(Φ (2 * k + 2) ∗ Φ (2 * k + 3) ∗ bigSep (xCore k) Φ) := by
  have e : ((xSet k).erase (2 * k + 2)).erase (2 * k + 3) = xCore k := by
    ext n; simp only [xSet, xCore, Finset.mem_erase, Finset.mem_filter, Finset.mem_range]; omega
  rw [← e]; exact two_out (by simp only [xSet, Finset.mem_filter, Finset.mem_range]; omega) (by simp only [xSet, Finset.mem_filter, Finset.mem_range]; omega) (by omega)
omit [FloatOps F] in
theorem xSet_in (Φ : ℕ → sProp 𝕄) (k : ℕ) (hk : k < 8) : bigSep (xSet (k + 1)) Φ = iprop(Φ (2 * k) ∗ Φ (2 * k + 1) ∗ bigSep (xCore k) Φ) := by
  have e : ((xSet (k + 1)).erase (2 * k)).erase (2 * k + 1) = xCore k := by
    ext n; simp only [xSet, xCore, Finset.mem_erase, Finset.mem_filter, Finset.mem_range]; omega
  rw [← e]; exact two_out (by simp only [xSet, Finset.mem_filter, Finset.mem_range]; omega) (by simp only [xSet, Finset.mem_filter, Finset.mem_range]; omega) (by omega)
omit [FloatOps F] in
theorem oSet_out (Φ : ℕ → sProp 𝕄) (k : ℕ) (hk : k < 8) : bigSep (oSet k) Φ = iprop(Φ (2 * k) ∗ Φ (2 * k + 1) ∗ bigSep (oCore k) Φ) := by
  have e : ((oSet k).erase (2 * k)).erase (2 * k + 1) = oCore k := by
    ext n; simp only [oSet, oCore, Finset.mem_erase, Finset.mem_filter, Finset.mem_range]; omega
  rw [← e]; exact two_out (by simp only [oSet, Finset.mem_filter, Finset.mem_range]; omega) (by simp only [oSet, Finset.mem_filter, Finset.mem_range]; omega) (by omega)
omit [FloatOps F] in
theorem oSet_in (Φ : ℕ → sProp 𝕄) (k : ℕ) (hk : k < 8) (hk1 : 1 ≤ k) :
    bigSep (oSet (k + 1)) Φ = iprop(Φ (2 * k - 2) ∗ Φ (2 * k - 1) ∗ bigSep (oCore k) Φ) := by
  have e : ((oSet (k + 1)).erase (2 * k - 2)).erase (2 * k - 1) = oCore k := by
    ext n; simp only [oSet, oCore, Finset.mem_erase, Finset.mem_filter, Finset.mem_range]; omega
  rw [← e]; exact two_out (by simp only [oSet, Finset.mem_filter, Finset.mem_range]; omega) (by simp only [oSet, Finset.mem_filter, Finset.mem_range]; omega) (by omega)

theorem xP_pos {n : ℕ} (v : valid L n) : xP d L fx n = xtPiece d L fx n := if_pos v
theorem oP_pos {n : ℕ} (v : valid L n) : oP (F := F) d L n = oPiece (F := F) d L n := if_pos v
theorem xP_neg {n : ℕ} (v : ¬ valid L n) : xP d L fx n = iprop(emp) := if_neg v
theorem oP_neg {n : ℕ} (v : ¬ valid L n) : oP (F := F) d L n = iprop(emp) := if_neg v

/-- Piece `n` of the result at its final contents: row 7 of the transposed argument. -/
def oQ (n : ℕ) : sProp 𝕄 :=
  if valid L n then (outM L n).view.loc (thr d L) ↦[(outM L n).view.set]{fullShare} (Cert.Spec.row 7 fx) else iprop(emp)

/-- What a tile is handed for the call: its pieces of row 7 of the transposed argument, at the argument's contents, and
    its pieces of the result at some contents. What it hands back: the same pieces of the argument, and its pieces of
    the result holding the row. -/
def goRes : sProp 𝕄 := iprop(bigSep (Finset.range 18) (xP d L fx) ∗ bigSep (Finset.range 18) (oP (F := F) d L))
def tdRes : sProp 𝕄 := iprop(bigSep (Finset.range 18) (xP d L fx) ∗ bigSep (Finset.range 18) (oQ d L fx))

end Tile

end Cert.Proof.TileB7

end
-- ==== Proof.TileB8Defs.lean ====
/-
  One vector subcore's task of copy kernel 8 (counting from 0): definitions. The task moves its pieces of row 8 of the
  transposed argument (pieces of 3200 consecutive elements, piece number 2·s + c + 32·n for the subcore (c, s) and
  n = 0, 1, … while that number is below 500) into the flat result: each piece is fetched into a staging row, copied
  16 lanes at a time into a flat staging buffer, and written out, two pieces in flight at a time. Here: the pieces as
  memrefs, the program's own spellings of them, the printed conditions as facts about the trip, the two slots' states
  between trips, and what the tile holds outside the slots.
-/
import proofs.«206869_g37898791420194_cont_8to1_b_558_20_alg».proof.Defs
import Idealize.ShloMosaic.Lib.SparseCore.Launch
import Idealize.ShloMosaic.Lib.StableHlo.Run
import Idealize.ShloMosaic.Lib.Pipeline.Kit
import Idealize.ShloMosaic.Lib.Tactic
import proofs.«206869_g37898791420194_cont_8to1_b_558_20_alg».proof.Proof.Gen.Kernel
import proofs.«206869_g37898791420194_cont_8to1_b_558_20_alg».proof.Proof.Gen.Kernel.Skeleton
import proofs.«206869_g37898791420194_cont_8to1_b_558_20_alg».proof.Proof.Spec

noncomputable section

namespace Cert.Proof.TileB8

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

abbrev ΛP : Labels := Pipeline.Sig Λ₀ (Fin 0) fun p => (pcfgs (F := F) p).Adm
abbrev K : SparseCore.Cfg τ sig (ΛP (F := F)) 22 := sc (F := F)
abbrev 𝒱₀ : Variants := Variants.none

abbrev UH : Type := URounds (GSem nD τ sig) ℕ
abbrev UU : Type := UH × Counters

local notation "𝕄" => MT nD τ sig (HIx 22) (Elt F) ℕ UU ℕ

local notation "xtW" => (Memref.whole Cert.Kernel.main_v0_scv : Memref Cert.Kernel.sig Kind.scVector Space.hbm Cert.Kernel.S22x1600000 EltTy.f32)
local notation "oW" => (Memref.whole Cert.Kernel.main_v9_scv : Memref Cert.Kernel.sig Kind.scVector Space.hbm Cert.Kernel.S1600000 EltTy.f32)
local notation "a4" => (Memref.whole Cert.Kernel.cc8_scratch0 : Memref Cert.Kernel.sig Kind.scVector Space.vmem Cert.Kernel.S8x3200 EltTy.f32)
local notation "a5" => (Memref.whole Cert.Kernel.cc8_scratch1 : Memref Cert.Kernel.sig Kind.scVector Space.vmem Cert.Kernel.S8x3200 EltTy.f32)
local notation "a6" => (Memref.whole Cert.Kernel.cc8_scratch2 : Memref Cert.Kernel.sig Kind.scVector Space.vmem Cert.Kernel.S25600 EltTy.f32)
local notation "a7" => (Memref.whole Cert.Kernel.cc8_scratch3 : Memref Cert.Kernel.sig Kind.scVector Space.vmem Cert.Kernel.S25600 EltTy.f32)

variable [FloatOps F]

section Tile

variable (d : Dev nD) (L : grid8.Coords)

abbrev cV (L : grid8.Coords) : Fin τ.nSC := (L 0).castLE hcore8
abbrev jV (L : grid8.Coords) : Fin τ.nSub := (L 1).castLE hsub8
abbrev thr (d : Dev nD) (L : grid8.Coords) : Thread nD τ := V d (cV L) (jV L)

/-- The tile's number 2·s + c, and whether it has sixteen pieces (numbers below 20) or fifteen. -/
abbrev wid (L : grid8.Coords) : ℕ := 2 * (L 1).val + (L 0).val
abbrev big (L : grid8.Coords) : Prop := wid L < 20

omit [FloatOps F] in
theorem wid_lt (L : grid8.Coords) : wid L < 32 := by
  have h0 : (L 0).val < 2 := (L 0).isLt
  have h1 : (L 1).val < 16 := (L 1).isLt
  unfold wid; omega

/-- Piece `n` of the tile exists: `n < 15`, or `n = 15` on a tile with sixteen pieces. It is the piece number
    `wid + 32·n < 500` of the row. -/
def valid (L : grid8.Coords) (n : ℕ) : Prop := n < 15 ∨ (n = 15 ∧ big L)
instance (L : grid8.Coords) (n : ℕ) : Decidable (valid L n) := by unfold valid big; infer_instance

omit [FloatOps F] in
theorem valid_iff (L : grid8.Coords) (n : ℕ) : valid L n ↔ wid L + 32 * n < 500 := by
  have := wid_lt L; unfold valid big; omega

/-- Where piece `n` starts in the row (clamped to the last piece of the row, so that the rectangle is in bounds for
    every `n`; for a valid piece the clamp is idle). -/
abbrev pos (L : grid8.Coords) (n : ℕ) : ℕ := 3200 * min (wid L + 32 * n) 499

omit [FloatOps F] in
theorem pos_valid {L : grid8.Coords} {n : ℕ} (h : valid L n) : pos L n = 6400 * (L 1).val + 3200 * (L 0).val + 102400 * n := by
  have := (valid_iff L n).mp h; unfold pos wid at *; omega

omit [FloatOps F] in
theorem in_inb (L : grid8.Coords) (n : ℕ) : ∀ a, (![8, pos L n] : Fin 2 → ℕ) a + S1x3200.size a ≤ S22x1600000.size a := by
  intro a; fin_cases a
  · show 8 + 1 ≤ 22; omega
  · show pos L n + 3200 ≤ 1600000; unfold pos; omega
omit [FloatOps F] in
theorem out_inb (L : grid8.Coords) (n : ℕ) : ∀ a, (![pos L n] : Fin 1 → ℕ) a + S3200.size a ≤ S1600000.size a := by
  intro a; fin_cases a
  show pos L n + 3200 ≤ 1600000; unfold pos; omega

/-- Piece `n` of row 8 of the transposed argument, and piece `n` of the flat result, as memrefs of the tile. -/
abbrev inM (L : grid8.Coords) (n : ℕ) : Memref sig .scVector .hbm S1x3200 .f32 :=
  (xtW).slice (Rect.unit (s := S22x1600000) ![8, pos L n] S1x3200.size (in_inb L n)) (fun _ => rfl)
abbrev outM (L : grid8.Coords) (n : ℕ) : Memref sig .scVector .hbm S3200 .f32 :=
  (oW).slice (Rect.unit (s := S1600000) ![pos L n] S3200.size (out_inb L n)) (fun _ => rfl)

/-! The program's own slices are these pieces: by the closed forms of its offset functions. -/

omit [FloatOps F] in
theorem off2 {a b : ℕ} (h : a = b) : (![8, a] : Fin 2 → ℕ) = ![8, b] := by rw [h]
omit [FloatOps F] in
theorem off1' {a b : ℕ} (h : a = b) : (![a] : Fin 1 → ℕ) = ![b] := by rw [h]

omit [FloatOps F] in
theorem off_in0 (L : grid8.Coords) (h : valid L 0) : k8_off1 L 0#32 = ![8, pos L 0] :=
  (k8_off1_eq L 0).trans (off2 (by rw [pos_valid h]; simp))
omit [FloatOps F] in
theorem off_in1 (L : grid8.Coords) (h : valid L 1) : k8_off1 L 32#32 = ![8, pos L 1] :=
  (k8_off1_eq L 1).trans (off2 (by rw [pos_valid h]; simp))
omit [FloatOps F] in
theorem off_6 (L : grid8.Coords) (t : Fin k8_t1_loop.trips) (h : valid L (2 * t.val + 2)) : k8_off6 L t = ![8, pos L (2 * t.val + 2)] :=
  (k8_off6_eq L t).trans (off2 (by rw [pos_valid h]; omega))
omit [FloatOps F] in
theorem off_11 (L : grid8.Coords) (t : Fin k8_t1_loop.trips) (h : valid L (2 * t.val + 3)) : k8_off11 L t = ![8, pos L (2 * t.val + 3)] :=
  (k8_off11_eq L t).trans (off2 (by rw [pos_valid h]; omega))
omit [FloatOps F] in
theorem off_5 (L : grid8.Coords) (t : Fin k8_t1_loop.trips) (h : valid L (2 * t.val)) : k8_off5 L t = ![pos L (2 * t.val)] :=
  (k8_off5_eq L t).trans (off1' (by rw [pos_valid h]; omega))
omit [FloatOps F] in
theorem off_10 (L : grid8.Coords) (t : Fin k8_t1_loop.trips) (h : valid L (2 * t.val + 1)) : k8_off10 L t = ![pos L (2 * t.val + 1)] :=
  (k8_off10_eq L t).trans (off1' (by rw [pos_valid h]; omega))

/-- Holding a 1 × 3200 window of the transposed argument, or a 3200 window of the result, by exactly its elements
    says the same whichever way the window's offsets are spelt. -/
theorem in_congr {off off' : Fin 2 → ℕ} (h : off = off') (p : ∀ a, off a + S1x3200.size a ≤ S22x1600000.size a)
    (p' : ∀ a, off' a + S1x3200.size a ≤ S22x1600000.size a) (f : Buf (Elt F) ((xtW).view.loc (thr d L))) :
    (((xtW).slice (Rect.unit (s := S22x1600000) off S1x3200.size p) (fun _ => rfl)).view.loc (thr d L)
        ↦[((xtW).slice (Rect.unit (s := S22x1600000) off S1x3200.size p) (fun _ => rfl)).view.set]{fullShare} f : sProp 𝕄)
      = (((xtW).slice (Rect.unit (s := S22x1600000) off' S1x3200.size p') (fun _ => rfl)).view.loc (thr d L)
        ↦[((xtW).slice (Rect.unit (s := S22x1600000) off' S1x3200.size p') (fun _ => rfl)).view.set]{fullShare} f) := by
  subst h; rfl
theorem out_congr {off off' : Fin 1 → ℕ} (h : off = off') (p : ∀ a, off a + S3200.size a ≤ S1600000.size a)
    (p' : ∀ a, off' a + S3200.size a ≤ S1600000.size a) (f : Buf (Elt F) ((oW).view.loc (thr d L))) :
    (((oW).slice (Rect.unit (s := S1600000) off S3200.size p) (fun _ => rfl)).view.loc (thr d L)
        ↦[((oW).slice (Rect.unit (s := S1600000) off S3200.size p) (fun _ => rfl)).view.set]{fullShare} f : sProp 𝕄)
      = (((oW).slice (Rect.unit (s := S1600000) off' S3200.size p') (fun _ => rfl)).view.loc (thr d L)
        ↦[((oW).slice (Rect.unit (s := S1600000) off' S3200.size p') (fun _ => rfl)).view.set]{fullShare} f) := by
  subst h; rfl

/-! The printed conditions, as facts about the trip and the tile. -/

omit [FloatOps F] in
theorem trips1 : k8_t1_loop.trips = 8 := by decide
omit [FloatOps F] in
theorem cond1_iff : ∀ (t : Fin k8_t1_loop.trips), k8_cond1 t = 1#1 ↔ 1 ≤ t.val := by decide +kernel
omit [FloatOps F] in
theorem cond2_iff : ∀ (L : grid8.Coords) (t : Fin k8_t1_loop.trips), k8_cond2 L t = 1#1 := by decide +kernel
omit [FloatOps F] in
theorem cond3_iff : ∀ (L : grid8.Coords) (t : Fin k8_t1_loop.trips), k8_cond3 L t = 1#1 ↔ t.val ≤ 6 := by decide +kernel
omit [FloatOps F] in
theorem cond4_iff : ∀ (t : Fin k8_t1_loop.trips), k8_cond4 t = 1#1 ↔ 1 ≤ t.val := by decide +kernel
omit [FloatOps F] in
theorem cond5_iff : ∀ (L : grid8.Coords) (t : Fin k8_t1_loop.trips), k8_cond5 L t = 1#1 ↔ (t.val ≤ 6 ∨ big L) := by decide +kernel
omit [FloatOps F] in
theorem cond6_iff : ∀ (L : grid8.Coords) (t : Fin k8_t1_loop.trips), k8_cond6 L t = 1#1 ↔ (t.val ≤ 5 ∨ (t.val = 6 ∧ big L)) := by decide +kernel
omit [FloatOps F] in
theorem cond7_iff : ∀ (L : grid8.Coords), k8_cond7 L = 1#1 := by decide +kernel
omit [FloatOps F] in
theorem cond8_iff : ∀ (L : grid8.Coords), k8_cond8 L = 1#1 ↔ big L := by decide +kernel

variable (O : CellTallies nD τ sig (HIx 22)) (W : Waits sig (HIx 22))
variable (fx : Buf (Elt F) ((xtW).view.loc (thr d L)))

abbrev NN : ℕ := 102400

/-- The 3200-element window of a flat staging buffer that a piece is written out from. -/
abbrev stg (a : Memref sig .scVector .vmem S25600 .f32) : Memref sig .scVector .vmem S3200 .f32 :=
  a.slice (Rect.unit (s := S25600) ![0] S3200.size inb_S25600_S3200_0) (fun _ => rfl)

/-- Piece `n` of the argument row held by exactly its elements, at the argument's contents; piece `n` of the result
    held by exactly its elements, at some contents. -/
abbrev xtPiece (n : ℕ) : sProp 𝕄 := (inM L n).view.loc (thr d L) ↦[(inM L n).view.set]{fullShare} fx
abbrev oPiece (n : ℕ) : sProp 𝕄 := iprop(∃ f, (outM L n).view.loc (thr d L) ↦[(outM L n).view.set]{fullShare} f)

/-- The lane-copy loop of a slot: the staging row keeps its contents, the flat staging buffer holds some contents. -/
def laneInv0 (g4 : Buf (Elt F) ((a4).view.loc (thr d L))) (_ : ℕ) (_ : PUnit) : sProp 𝕄 :=
  iprop(((a4).view.loc (thr d L) ↦{fullShare} g4) ∗ (∃ g, (a6).view.loc (thr d L) ↦{fullShare} g))
def laneInv1 (g5 : Buf (Elt F) ((a5).view.loc (thr d L))) (_ : ℕ) (_ : PUnit) : sProp 𝕄 :=
  iprop(((a5).view.loc (thr d L) ↦{fullShare} g5) ∗ (∃ g, (a7).view.loc (thr d L) ↦{fullShare} g))

/-- A fetch slot before trip work on piece `n`: the piece's fetch in flight (it will hand back the staging row at some
    contents, and the piece), or, when there is no such piece, the slot idle. -/
def inSlot (a : Memref sig .scVector .vmem S8x3200 .f32) (sm : DmaSem sig) (n : ℕ) : sProp 𝕄 :=
  if valid L n then
    iprop(∃ g, Transfers.Flight countersEmb (thr d L) (SemLoc.dma sm) (default : HIx 22) NN
      iprop((a.view.loc (thr d L) ↦{fullShare} g) ∗ xtPiece d L fx n))
  else iprop((∃ g, a.view.loc (thr d L) ↦{fullShare} g) ∗ semVal (thr d L, SemLoc.dma sm) 0)

/-- A write-out slot before trip work on piece `m`: piece `m - 2`'s write-out in flight (it will hand back that piece
    of the result at some contents, and the staging window), the rest of the staging buffer beside it; or idle. -/
def outSlot (a : Memref sig .scVector .vmem S25600 .f32) (sm : DmaSem sig) (m : ℕ) : sProp 𝕄 :=
  if 2 ≤ m ∧ valid L (m - 2) then
    iprop(∃ g, Transfers.Flight countersEmb (thr d L) (SemLoc.dma sm) (default : HIx 22) NN
        iprop(oPiece d L (m - 2) ∗ ((stg a).view.loc (thr d L) ↦[(stg a).view.set]{fullShare} g))
      ∗ (a.view.loc (thr d L) ↦[Finset.univ \ (stg a).view.set]{fullShare} g))
  else iprop((∃ g, a.view.loc (thr d L) ↦{fullShare} g) ∗ semVal (thr d L, SemLoc.dma sm) 0)

/-- Piece `n` when it exists, nothing otherwise. -/
def xP (n : ℕ) : sProp 𝕄 := if valid L n then xtPiece d L fx n else iprop(emp)
def oP (n : ℕ) : sProp 𝕄 := if valid L n then oPiece d L n else iprop(emp)

/-- What the tile holds outside the slots before trip `t`: every piece of the argument row but those being fetched
    (`2t`, `2t + 1`), every piece of the result but those being written out (`2t - 2`, `2t - 1`). -/
def xSet (t : ℕ) : Finset ℕ := (Finset.range 18).filter fun n => n ≠ 2 * t ∧ n ≠ 2 * t + 1
def oSet (t : ℕ) : Finset ℕ := (Finset.range 18).filter fun n => n + 2 ≠ 2 * t ∧ n + 2 ≠ 2 * t + 1

def inv (t : ℕ) (_ : PUnit) : sProp 𝕄 :=
  iprop(Transfers.MayWaits (thr d L) (none : HIx 22) O
    ∗ (∃ W', ⌜∀ p ∈ W', p ∈ W ∨ p.2 = none⌝ ∗ owes (thr d L) O W')
    ∗ bigSep (xSet t) (xP d L fx) ∗ bigSep (oSet t) (oP d L)
    ∗ inSlot d L fx a4 cc8_scratch4.sem (2 * t) ∗ outSlot d L a6 cc8_scratch6.sem (2 * t)
    ∗ inSlot d L fx a5 cc8_scratch5.sem (2 * t + 1) ∗ outSlot d L a7 cc8_scratch7.sem (2 * t + 1))

omit [FloatOps F] in
theorem two_out {Φ : ℕ → sProp 𝕄} {s : Finset ℕ} {a b : ℕ} (ha : a ∈ s) (hb : b ∈ s) (hab : a ≠ b) :
    bigSep s Φ = iprop(Φ a ∗ Φ b ∗ bigSep ((s.erase a).erase b) Φ) := by
  rw [SparseCore.bigSep_erase' ha, SparseCore.bigSep_erase' (Finset.mem_erase.mpr ⟨fun e => hab e.symm, hb⟩)]

omit [FloatOps F] in
theorem range18_split : (Finset.range 18) = insert 0 (insert 1 (xSet 0)) := by decide

theorem xRange_split (v0 : valid L 0) (v1 : valid L 1) :
    bigSep (Finset.range 18) (xP d L fx) = iprop(xtPiece d L fx 0 ∗ xtPiece d L fx 1 ∗ bigSep (xSet 0) (xP d L fx)) := by
  rw [range18_split, SparseCore.bigSep_insert' (by decide), SparseCore.bigSep_insert' (by decide)]
  unfold xP; rw [if_pos v0, if_pos v1]
omit [FloatOps F] in
theorem oSet_zero : oSet 0 = Finset.range 18 := by decide

theorem inSlot_pos {a : Memref sig .scVector .vmem S8x3200 .f32} {sm : DmaSem sig} {n : ℕ} (v : valid L n) :
    inSlot d L fx a sm n = iprop(∃ g, Transfers.Flight countersEmb (thr d L) (SemLoc.dma sm) (default : HIx 22) NN
      iprop((a.view.loc (thr d L) ↦{fullShare} g) ∗ xtPiece d L fx n)) := by unfold inSlot; rw [if_pos v]
theorem inSlot_neg {a : Memref sig .scVector .vmem S8x3200 .f32} {sm : DmaSem sig} {n : ℕ} (v : ¬ valid L n) :
    inSlot d L fx a sm n = iprop((∃ g, a.view.loc (thr d L) ↦{fullShare} g) ∗ semVal (thr d L, SemLoc.dma sm) 0) := by
  unfold inSlot; rw [if_neg v]
theorem outSlot_pos {a : Memref sig .scVector .vmem S25600 .f32} {sm : DmaSem sig} {m : ℕ} (h : 2 ≤ m ∧ valid L (m - 2)) :
    outSlot (F := F) d L a sm m = iprop(∃ g, Transfers.Flight countersEmb (thr d L) (SemLoc.dma sm) (default : HIx 22) NN
        iprop(oPiece (F := F) d L (m - 2) ∗ ((stg a).view.loc (thr d L) ↦[(stg a).view.set]{fullShare} g))
      ∗ (a.view.loc (thr d L) ↦[Finset.univ \ (stg a).view.set]{fullShare} g)) := by unfold outSlot; rw [if_pos h]
theorem outSlot_neg {a : Memref sig .scVector .vmem S25600 .f32} {sm : DmaSem sig} {m : ℕ} (h : ¬ (2 ≤ m ∧ valid L (m - 2))) :
    outSlot (F := F) d L a sm m = iprop((∃ g, a.view.loc (thr d L) ↦{fullShare} g) ∗ semVal (thr d L, SemLoc.dma sm) 0) := by
  unfold outSlot; rw [if_neg h]

/-- A fetch in flight, its source window spelt by any offsets equal to piece `n`'s, fills the fetch slot for `n`. -/
theorem fl_in {off : Fin 2 → ℕ} {n : ℕ} (h : off = ![8, pos L n]) (p : ∀ a, off a + S1x3200.size a ≤ S22x1600000.size a) (v : valid L n)
    (a : Memref sig .scVector .vmem S8x3200 .f32) (sm : DmaSem sig) :
    (iprop(∃ g, Transfers.Flight countersEmb (thr d L) (SemLoc.dma sm) (default : HIx 22) NN
        iprop((a.view.loc (thr d L) ↦{fullShare} g)
          ∗ (((xtW).slice (Rect.unit (s := S22x1600000) off S1x3200.size p) (fun _ => rfl)).view.loc (thr d L)
              ↦[((xtW).slice (Rect.unit (s := S22x1600000) off S1x3200.size p) (fun _ => rfl)).view.set]{fullShare} fx))) : sProp 𝕄)
      ⊢ inSlot d L fx a sm n := by
  rw [inSlot_pos d L fx v]
  iintro ⟨%g, H⟩
  have hD : (iprop((a.view.loc (thr d L) ↦{fullShare} g)
          ∗ (((xtW).slice (Rect.unit (s := S22x1600000) off S1x3200.size p) (fun _ => rfl)).view.loc (thr d L)
              ↦[((xtW).slice (Rect.unit (s := S22x1600000) off S1x3200.size p) (fun _ => rfl)).view.set]{fullShare} fx)) : sProp 𝕄)
      ⊢ iprop((a.view.loc (thr d L) ↦{fullShare} g) ∗ xtPiece d L fx n) := by
    iintro ⟨H1, H2⟩
    isplitl [H1]; · iexact H1
    iapply (Entails.of_eq (in_congr d L h p (in_inb L n) fx)); iexact H2
  iexists g
  iapply (Transfers.Flight_mono countersEmb (thr d L) hD); iexact H

/-- A write-out in flight, its destination window spelt by any offsets equal to piece `n`'s, with the rest of the
    staging buffer, fills the write-out slot for `n + 2`. -/
theorem fl_out {off : Fin 1 → ℕ} {n : ℕ} (h : off = ![pos L n]) (p : ∀ a, off a + S3200.size a ≤ S1600000.size a) (v : valid L n)
    (a : Memref sig .scVector .vmem S25600 .f32) (sm : DmaSem sig) :
    (iprop(∃ (f : Buf (Elt F) ((oW).view.loc (thr d L))) (g : Buf (Elt F) (a.view.loc (thr d L))), Transfers.Flight countersEmb (thr d L) (SemLoc.dma sm) (default : HIx 22) NN
        iprop((((oW).slice (Rect.unit (s := S1600000) off S3200.size p) (fun _ => rfl)).view.loc (thr d L)
              ↦[((oW).slice (Rect.unit (s := S1600000) off S3200.size p) (fun _ => rfl)).view.set]{fullShare} f)
          ∗ ((stg a).view.loc (thr d L) ↦[(stg a).view.set]{fullShare} g))
        ∗ (a.view.loc (thr d L) ↦[Finset.univ \ (stg a).view.set]{fullShare} g)) : sProp 𝕄)
      ⊢ outSlot (F := F) d L a sm (n + 2) := by
  rw [outSlot_pos (F := F) d L (m := n + 2) ⟨by omega, by simpa using v⟩]
  iintro ⟨%f, %g, H, R⟩
  have hD : (iprop((((oW).slice (Rect.unit (s := S1600000) off S3200.size p) (fun _ => rfl)).view.loc (thr d L)
              ↦[((oW).slice (Rect.unit (s := S1600000) off S3200.size p) (fun _ => rfl)).view.set]{fullShare} f)
          ∗ ((stg a).view.loc (thr d L) ↦[(stg a).view.set]{fullShare} g)) : sProp 𝕄)
      ⊢ iprop(oPiece (F := F) d L (n + 2 - 2) ∗ ((stg a).view.loc (thr d L) ↦[(stg a).view.set]{fullShare} g)) := by
    rw [Nat.add_sub_cancel]
    iintro ⟨H1, H2⟩
    isplitl [H1]
    · iexists f; iapply (Entails.of_eq (out_congr d L h p (out_inb L n) f)); iexact H1
    · iexact H2
  iexists g
  isplitl [H]
  · iapply (Transfers.Flight_mono countersEmb (thr d L) hD); iexact H
  · iexact R

/-! The pieces outside the slots, from one trip to the next. -/
def xCore (k : ℕ) : Finset ℕ := (Finset.range 18).filter fun n => n ≠ 2 * k ∧ n ≠ 2 * k + 1 ∧ n ≠ 2 * k + 2 ∧ n ≠ 2 * k + 3
def oCore (k : ℕ) : Finset ℕ := (Finset.range 18).filter fun n => n + 2 ≠ 2 * k ∧ n + 2 ≠ 2 * k + 1 ∧ n ≠ 2 * k ∧ n ≠ 2 * k + 1

omit [FloatOps F] in
theorem xSet_out (Φ : ℕ → sProp 𝕄) (k : ℕ) (hk : k < 8) : bigSep (xSet k) Φ = iprop(Φ (2 * k + 2) ∗ Φ (2 * k + 3) ∗ bigSep (xCore k) Φ) := by
  have e : ((xSet k).erase (2 * k + 2)).erase (2 * k + 3) = xCore k := by
    ext n; simp only [xSet, xCore, Finset.mem_erase, Finset.mem_filter, Finset.mem_range]; omega
  rw [← e]; exact two_out (by simp only [xSet, Finset.mem_filter, Finset.mem_range]; omega) (by simp only [xSet, Finset.mem_filter, Finset.mem_range]; omega) (by omega)
omit [FloatOps F] in
theorem xSet_in (Φ : ℕ → sProp 𝕄) (k : ℕ) (hk : k < 8) : bigSep (xSet (k + 1)) Φ = iprop(Φ (2 * k) ∗ Φ (2 * k + 1) ∗ bigSep (xCore k) Φ) := by
  have e : ((xSet (k + 1)).erase (2 * k)).erase (2 * k + 1) = xCore k := by
    ext n; simp only [xSet, xCore, Finset.mem_erase, Finset.mem_filter, Finset.mem_range]; omega
  rw [← e]; exact two_out (by simp only [xSet, Finset.mem_filter, Finset.mem_range]; omega) (by simp only [xSet, Finset.mem_filter, Finset.mem_range]; omega) (by omega)
omit [FloatOps F] in
theorem oSet_out (Φ : ℕ → sProp 𝕄) (k : ℕ) (hk : k < 8) : bigSep (oSet k) Φ = iprop(Φ (2 * k) ∗ Φ (2 * k + 1) ∗ bigSep (oCore k) Φ) := by
  have e : ((oSet k).erase (2 * k)).erase (2 * k + 1) = oCore k := by
    ext n; simp only [oSet, oCore, Finset.mem_erase, Finset.mem_filter, Finset.mem_range]; omega
  rw [← e]; exact two_out (by simp only [oSet, Finset.mem_filter, Finset.mem_range]; omega) (by simp only [oSet, Finset.mem_filter, Finset.mem_range]; omega) (by omega)
omit [FloatOps F] in
theorem oSet_in (Φ : ℕ → sProp 𝕄) (k : ℕ) (hk : k < 8) (hk1 : 1 ≤ k) :
    bigSep (oSet (k + 1)) Φ = iprop(Φ (2 * k - 2) ∗ Φ (2 * k - 1) ∗ bigSep (oCore k) Φ) := by
  have e : ((oSet (k + 1)).erase (2 * k - 2)).erase (2 * k - 1) = oCore k := by
    ext n; simp only [oSet, oCore, Finset.mem_erase, Finset.mem_filter, Finset.mem_range]; omega
  rw [← e]; exact two_out (by simp only [oSet, Finset.mem_filter, Finset.mem_range]; omega) (by simp only [oSet, Finset.mem_filter, Finset.mem_range]; omega) (by omega)

theorem xP_pos {n : ℕ} (v : valid L n) : xP d L fx n = xtPiece d L fx n := if_pos v
theorem oP_pos {n : ℕ} (v : valid L n) : oP (F := F) d L n = oPiece (F := F) d L n := if_pos v
theorem xP_neg {n : ℕ} (v : ¬ valid L n) : xP d L fx n = iprop(emp) := if_neg v
theorem oP_neg {n : ℕ} (v : ¬ valid L n) : oP (F := F) d L n = iprop(emp) := if_neg v

/-- Piece `n` of the result at its final contents: row 8 of the transposed argument. -/
def oQ (n : ℕ) : sProp 𝕄 :=
  if valid L n then (outM L n).view.loc (thr d L) ↦[(outM L n).view.set]{fullShare} (Cert.Spec.row 8 fx) else iprop(emp)

/-- What a tile is handed for the call: its pieces of row 8 of the transposed argument, at the argument's contents, and
    its pieces of the result at some contents. What it hands back: the same pieces of the argument, and its pieces of
    the result holding the row. -/
def goRes : sProp 𝕄 := iprop(bigSep (Finset.range 18) (xP d L fx) ∗ bigSep (Finset.range 18) (oP (F := F) d L))
def tdRes : sProp 𝕄 := iprop(bigSep (Finset.range 18) (xP d L fx) ∗ bigSep (Finset.range 18) (oQ d L fx))

end Tile

end Cert.Proof.TileB8

end
-- ==== Proof.TileB9Defs.lean ====
/-
  One vector subcore's task of copy kernel 9 (counting from 0): definitions. The task moves its pieces of row 9 of the
  transposed argument (pieces of 3200 consecutive elements, piece number 2·s + c + 32·n for the subcore (c, s) and
  n = 0, 1, … while that number is below 500) into the flat result: each piece is fetched into a staging row, copied
  16 lanes at a time into a flat staging buffer, and written out, two pieces in flight at a time. Here: the pieces as
  memrefs, the program's own spellings of them, the printed conditions as facts about the trip, the two slots' states
  between trips, and what the tile holds outside the slots.
-/
import proofs.«206869_g37898791420194_cont_8to1_b_558_20_alg».proof.Defs
import Idealize.ShloMosaic.Lib.SparseCore.Launch
import Idealize.ShloMosaic.Lib.StableHlo.Run
import Idealize.ShloMosaic.Lib.Pipeline.Kit
import Idealize.ShloMosaic.Lib.Tactic
import proofs.«206869_g37898791420194_cont_8to1_b_558_20_alg».proof.Proof.Gen.Kernel
import proofs.«206869_g37898791420194_cont_8to1_b_558_20_alg».proof.Proof.Gen.Kernel.Skeleton
import proofs.«206869_g37898791420194_cont_8to1_b_558_20_alg».proof.Proof.Spec

noncomputable section

namespace Cert.Proof.TileB9

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

abbrev ΛP : Labels := Pipeline.Sig Λ₀ (Fin 0) fun p => (pcfgs (F := F) p).Adm
abbrev K : SparseCore.Cfg τ sig (ΛP (F := F)) 22 := sc (F := F)
abbrev 𝒱₀ : Variants := Variants.none

abbrev UH : Type := URounds (GSem nD τ sig) ℕ
abbrev UU : Type := UH × Counters

local notation "𝕄" => MT nD τ sig (HIx 22) (Elt F) ℕ UU ℕ

local notation "xtW" => (Memref.whole Cert.Kernel.main_v0_scv : Memref Cert.Kernel.sig Kind.scVector Space.hbm Cert.Kernel.S22x1600000 EltTy.f32)
local notation "oW" => (Memref.whole Cert.Kernel.main_v10_scv : Memref Cert.Kernel.sig Kind.scVector Space.hbm Cert.Kernel.S1600000 EltTy.f32)
local notation "a4" => (Memref.whole Cert.Kernel.cc9_scratch0 : Memref Cert.Kernel.sig Kind.scVector Space.vmem Cert.Kernel.S8x3200 EltTy.f32)
local notation "a5" => (Memref.whole Cert.Kernel.cc9_scratch1 : Memref Cert.Kernel.sig Kind.scVector Space.vmem Cert.Kernel.S8x3200 EltTy.f32)
local notation "a6" => (Memref.whole Cert.Kernel.cc9_scratch2 : Memref Cert.Kernel.sig Kind.scVector Space.vmem Cert.Kernel.S25600 EltTy.f32)
local notation "a7" => (Memref.whole Cert.Kernel.cc9_scratch3 : Memref Cert.Kernel.sig Kind.scVector Space.vmem Cert.Kernel.S25600 EltTy.f32)

variable [FloatOps F]

section Tile

variable (d : Dev nD) (L : grid9.Coords)

abbrev cV (L : grid9.Coords) : Fin τ.nSC := (L 0).castLE hcore9
abbrev jV (L : grid9.Coords) : Fin τ.nSub := (L 1).castLE hsub9
abbrev thr (d : Dev nD) (L : grid9.Coords) : Thread nD τ := V d (cV L) (jV L)

/-- The tile's number 2·s + c, and whether it has sixteen pieces (numbers below 20) or fifteen. -/
abbrev wid (L : grid9.Coords) : ℕ := 2 * (L 1).val + (L 0).val
abbrev big (L : grid9.Coords) : Prop := wid L < 20

omit [FloatOps F] in
theorem wid_lt (L : grid9.Coords) : wid L < 32 := by
  have h0 : (L 0).val < 2 := (L 0).isLt
  have h1 : (L 1).val < 16 := (L 1).isLt
  unfold wid; omega

/-- Piece `n` of the tile exists: `n < 15`, or `n = 15` on a tile with sixteen pieces. It is the piece number
    `wid + 32·n < 500` of the row. -/
def valid (L : grid9.Coords) (n : ℕ) : Prop := n < 15 ∨ (n = 15 ∧ big L)
instance (L : grid9.Coords) (n : ℕ) : Decidable (valid L n) := by unfold valid big; infer_instance

omit [FloatOps F] in
theorem valid_iff (L : grid9.Coords) (n : ℕ) : valid L n ↔ wid L + 32 * n < 500 := by
  have := wid_lt L; unfold valid big; omega

/-- Where piece `n` starts in the row (clamped to the last piece of the row, so that the rectangle is in bounds for
    every `n`; for a valid piece the clamp is idle). -/
abbrev pos (L : grid9.Coords) (n : ℕ) : ℕ := 3200 * min (wid L + 32 * n) 499

omit [FloatOps F] in
theorem pos_valid {L : grid9.Coords} {n : ℕ} (h : valid L n) : pos L n = 6400 * (L 1).val + 3200 * (L 0).val + 102400 * n := by
  have := (valid_iff L n).mp h; unfold pos wid at *; omega

omit [FloatOps F] in
theorem in_inb (L : grid9.Coords) (n : ℕ) : ∀ a, (![9, pos L n] : Fin 2 → ℕ) a + S1x3200.size a ≤ S22x1600000.size a := by
  intro a; fin_cases a
  · show 9 + 1 ≤ 22; omega
  · show pos L n + 3200 ≤ 1600000; unfold pos; omega
omit [FloatOps F] in
theorem out_inb (L : grid9.Coords) (n : ℕ) : ∀ a, (![pos L n] : Fin 1 → ℕ) a + S3200.size a ≤ S1600000.size a := by
  intro a; fin_cases a
  show pos L n + 3200 ≤ 1600000; unfold pos; omega

/-- Piece `n` of row 9 of the transposed argument, and piece `n` of the flat result, as memrefs of the tile. -/
abbrev inM (L : grid9.Coords) (n : ℕ) : Memref sig .scVector .hbm S1x3200 .f32 :=
  (xtW).slice (Rect.unit (s := S22x1600000) ![9, pos L n] S1x3200.size (in_inb L n)) (fun _ => rfl)
abbrev outM (L : grid9.Coords) (n : ℕ) : Memref sig .scVector .hbm S3200 .f32 :=
  (oW).slice (Rect.unit (s := S1600000) ![pos L n] S3200.size (out_inb L n)) (fun _ => rfl)

/-! The program's own slices are these pieces: by the closed forms of its offset functions. -/

omit [FloatOps F] in
theorem off2 {a b : ℕ} (h : a = b) : (![9, a] : Fin 2 → ℕ) = ![9, b] := by rw [h]
omit [FloatOps F] in
theorem off1' {a b : ℕ} (h : a = b) : (![a] : Fin 1 → ℕ) = ![b] := by rw [h]

omit [FloatOps F] in
theorem off_in0 (L : grid9.Coords) (h : valid L 0) : k9_off1 L 0#32 = ![9, pos L 0] :=
  (k9_off1_eq L 0).trans (off2 (by rw [pos_valid h]; simp))
omit [FloatOps F] in
theorem off_in1 (L : grid9.Coords) (h : valid L 1) : k9_off1 L 32#32 = ![9, pos L 1] :=
  (k9_off1_eq L 1).trans (off2 (by rw [pos_valid h]; simp))
omit [FloatOps F] in
theorem off_6 (L : grid9.Coords) (t : Fin k9_t1_loop.trips) (h : valid L (2 * t.val + 2)) : k9_off6 L t = ![9, pos L (2 * t.val + 2)] :=
  (k9_off6_eq L t).trans (off2 (by rw [pos_valid h]; omega))
omit [FloatOps F] in
theorem off_11 (L : grid9.Coords) (t : Fin k9_t1_loop.trips) (h : valid L (2 * t.val + 3)) : k9_off11 L t = ![9, pos L (2 * t.val + 3)] :=
  (k9_off11_eq L t).trans (off2 (by rw [pos_valid h]; omega))
omit [FloatOps F] in
theorem off_5 (L : grid9.Coords) (t : Fin k9_t1_loop.trips) (h : valid L (2 * t.val)) : k9_off5 L t = ![pos L (2 * t.val)] :=
  (k9_off5_eq L t).trans (off1' (by rw [pos_valid h]; omega))
omit [FloatOps F] in
theorem off_10 (L : grid9.Coords) (t : Fin k9_t1_loop.trips) (h : valid L (2 * t.val + 1)) : k9_off10 L t = ![pos L (2 * t.val + 1)] :=
  (k9_off10_eq L t).trans (off1' (by rw [pos_valid h]; omega))

/-- Holding a 1 × 3200 window of the transposed argument, or a 3200 window of the result, by exactly its elements
    says the same whichever way the window's offsets are spelt. -/
theorem in_congr {off off' : Fin 2 → ℕ} (h : off = off') (p : ∀ a, off a + S1x3200.size a ≤ S22x1600000.size a)
    (p' : ∀ a, off' a + S1x3200.size a ≤ S22x1600000.size a) (f : Buf (Elt F) ((xtW).view.loc (thr d L))) :
    (((xtW).slice (Rect.unit (s := S22x1600000) off S1x3200.size p) (fun _ => rfl)).view.loc (thr d L)
        ↦[((xtW).slice (Rect.unit (s := S22x1600000) off S1x3200.size p) (fun _ => rfl)).view.set]{fullShare} f : sProp 𝕄)
      = (((xtW).slice (Rect.unit (s := S22x1600000) off' S1x3200.size p') (fun _ => rfl)).view.loc (thr d L)
        ↦[((xtW).slice (Rect.unit (s := S22x1600000) off' S1x3200.size p') (fun _ => rfl)).view.set]{fullShare} f) := by
  subst h; rfl
theorem out_congr {off off' : Fin 1 → ℕ} (h : off = off') (p : ∀ a, off a + S3200.size a ≤ S1600000.size a)
    (p' : ∀ a, off' a + S3200.size a ≤ S1600000.size a) (f : Buf (Elt F) ((oW).view.loc (thr d L))) :
    (((oW).slice (Rect.unit (s := S1600000) off S3200.size p) (fun _ => rfl)).view.loc (thr d L)
        ↦[((oW).slice (Rect.unit (s := S1600000) off S3200.size p) (fun _ => rfl)).view.set]{fullShare} f : sProp 𝕄)
      = (((oW).slice (Rect.unit (s := S1600000) off' S3200.size p') (fun _ => rfl)).view.loc (thr d L)
        ↦[((oW).slice (Rect.unit (s := S1600000) off' S3200.size p') (fun _ => rfl)).view.set]{fullShare} f) := by
  subst h; rfl

/-! The printed conditions, as facts about the trip and the tile. -/

omit [FloatOps F] in
theorem trips1 : k9_t1_loop.trips = 8 := by decide
omit [FloatOps F] in
theorem cond1_iff : ∀ (t : Fin k9_t1_loop.trips), k9_cond1 t = 1#1 ↔ 1 ≤ t.val := by decide +kernel
omit [FloatOps F] in
theorem cond2_iff : ∀ (L : grid9.Coords) (t : Fin k9_t1_loop.trips), k9_cond2 L t = 1#1 := by decide +kernel
omit [FloatOps F] in
theorem cond3_iff : ∀ (L : grid9.Coords) (t : Fin k9_t1_loop.trips), k9_cond3 L t = 1#1 ↔ t.val ≤ 6 := by decide +kernel
omit [FloatOps F] in
theorem cond4_iff : ∀ (t : Fin k9_t1_loop.trips), k9_cond4 t = 1#1 ↔ 1 ≤ t.val := by decide +kernel
omit [FloatOps F] in
theorem cond5_iff : ∀ (L : grid9.Coords) (t : Fin k9_t1_loop.trips), k9_cond5 L t = 1#1 ↔ (t.val ≤ 6 ∨ big L) := by decide +kernel
omit [FloatOps F] in
theorem cond6_iff : ∀ (L : grid9.Coords) (t : Fin k9_t1_loop.trips), k9_cond6 L t = 1#1 ↔ (t.val ≤ 5 ∨ (t.val = 6 ∧ big L)) := by decide +kernel
omit [FloatOps F] in
theorem cond7_iff : ∀ (L : grid9.Coords), k9_cond7 L = 1#1 := by decide +kernel
omit [FloatOps F] in
theorem cond8_iff : ∀ (L : grid9.Coords), k9_cond8 L = 1#1 ↔ big L := by decide +kernel

variable (O : CellTallies nD τ sig (HIx 22)) (W : Waits sig (HIx 22))
variable (fx : Buf (Elt F) ((xtW).view.loc (thr d L)))

abbrev NN : ℕ := 102400

/-- The 3200-element window of a flat staging buffer that a piece is written out from. -/
abbrev stg (a : Memref sig .scVector .vmem S25600 .f32) : Memref sig .scVector .vmem S3200 .f32 :=
  a.slice (Rect.unit (s := S25600) ![0] S3200.size inb_S25600_S3200_0) (fun _ => rfl)

/-- Piece `n` of the argument row held by exactly its elements, at the argument's contents; piece `n` of the result
    held by exactly its elements, at some contents. -/
abbrev xtPiece (n : ℕ) : sProp 𝕄 := (inM L n).view.loc (thr d L) ↦[(inM L n).view.set]{fullShare} fx
abbrev oPiece (n : ℕ) : sProp 𝕄 := iprop(∃ f, (outM L n).view.loc (thr d L) ↦[(outM L n).view.set]{fullShare} f)

/-- The lane-copy loop of a slot: the staging row keeps its contents, the flat staging buffer holds some contents. -/
def laneInv0 (g4 : Buf (Elt F) ((a4).view.loc (thr d L))) (_ : ℕ) (_ : PUnit) : sProp 𝕄 :=
  iprop(((a4).view.loc (thr d L) ↦{fullShare} g4) ∗ (∃ g, (a6).view.loc (thr d L) ↦{fullShare} g))
def laneInv1 (g5 : Buf (Elt F) ((a5).view.loc (thr d L))) (_ : ℕ) (_ : PUnit) : sProp 𝕄 :=
  iprop(((a5).view.loc (thr d L) ↦{fullShare} g5) ∗ (∃ g, (a7).view.loc (thr d L) ↦{fullShare} g))

/-- A fetch slot before trip work on piece `n`: the piece's fetch in flight (it will hand back the staging row at some
    contents, and the piece), or, when there is no such piece, the slot idle. -/
def inSlot (a : Memref sig .scVector .vmem S8x3200 .f32) (sm : DmaSem sig) (n : ℕ) : sProp 𝕄 :=
  if valid L n then
    iprop(∃ g, Transfers.Flight countersEmb (thr d L) (SemLoc.dma sm) (default : HIx 22) NN
      iprop((a.view.loc (thr d L) ↦{fullShare} g) ∗ xtPiece d L fx n))
  else iprop((∃ g, a.view.loc (thr d L) ↦{fullShare} g) ∗ semVal (thr d L, SemLoc.dma sm) 0)

/-- A write-out slot before trip work on piece `m`: piece `m - 2`'s write-out in flight (it will hand back that piece
    of the result at some contents, and the staging window), the rest of the staging buffer beside it; or idle. -/
def outSlot (a : Memref sig .scVector .vmem S25600 .f32) (sm : DmaSem sig) (m : ℕ) : sProp 𝕄 :=
  if 2 ≤ m ∧ valid L (m - 2) then
    iprop(∃ g, Transfers.Flight countersEmb (thr d L) (SemLoc.dma sm) (default : HIx 22) NN
        iprop(oPiece d L (m - 2) ∗ ((stg a).view.loc (thr d L) ↦[(stg a).view.set]{fullShare} g))
      ∗ (a.view.loc (thr d L) ↦[Finset.univ \ (stg a).view.set]{fullShare} g))
  else iprop((∃ g, a.view.loc (thr d L) ↦{fullShare} g) ∗ semVal (thr d L, SemLoc.dma sm) 0)

/-- Piece `n` when it exists, nothing otherwise. -/
def xP (n : ℕ) : sProp 𝕄 := if valid L n then xtPiece d L fx n else iprop(emp)
def oP (n : ℕ) : sProp 𝕄 := if valid L n then oPiece d L n else iprop(emp)

/-- What the tile holds outside the slots before trip `t`: every piece of the argument row but those being fetched
    (`2t`, `2t + 1`), every piece of the result but those being written out (`2t - 2`, `2t - 1`). -/
def xSet (t : ℕ) : Finset ℕ := (Finset.range 18).filter fun n => n ≠ 2 * t ∧ n ≠ 2 * t + 1
def oSet (t : ℕ) : Finset ℕ := (Finset.range 18).filter fun n => n + 2 ≠ 2 * t ∧ n + 2 ≠ 2 * t + 1

def inv (t : ℕ) (_ : PUnit) : sProp 𝕄 :=
  iprop(Transfers.MayWaits (thr d L) (none : HIx 22) O
    ∗ (∃ W', ⌜∀ p ∈ W', p ∈ W ∨ p.2 = none⌝ ∗ owes (thr d L) O W')
    ∗ bigSep (xSet t) (xP d L fx) ∗ bigSep (oSet t) (oP d L)
    ∗ inSlot d L fx a4 cc9_scratch4.sem (2 * t) ∗ outSlot d L a6 cc9_scratch6.sem (2 * t)
    ∗ inSlot d L fx a5 cc9_scratch5.sem (2 * t + 1) ∗ outSlot d L a7 cc9_scratch7.sem (2 * t + 1))

omit [FloatOps F] in
theorem two_out {Φ : ℕ → sProp 𝕄} {s : Finset ℕ} {a b : ℕ} (ha : a ∈ s) (hb : b ∈ s) (hab : a ≠ b) :
    bigSep s Φ = iprop(Φ a ∗ Φ b ∗ bigSep ((s.erase a).erase b) Φ) := by
  rw [SparseCore.bigSep_erase' ha, SparseCore.bigSep_erase' (Finset.mem_erase.mpr ⟨fun e => hab e.symm, hb⟩)]

omit [FloatOps F] in
theorem range18_split : (Finset.range 18) = insert 0 (insert 1 (xSet 0)) := by decide

theorem xRange_split (v0 : valid L 0) (v1 : valid L 1) :
    bigSep (Finset.range 18) (xP d L fx) = iprop(xtPiece d L fx 0 ∗ xtPiece d L fx 1 ∗ bigSep (xSet 0) (xP d L fx)) := by
  rw [range18_split, SparseCore.bigSep_insert' (by decide), SparseCore.bigSep_insert' (by decide)]
  unfold xP; rw [if_pos v0, if_pos v1]
omit [FloatOps F] in
theorem oSet_zero : oSet 0 = Finset.range 18 := by decide

theorem inSlot_pos {a : Memref sig .scVector .vmem S8x3200 .f32} {sm : DmaSem sig} {n : ℕ} (v : valid L n) :
    inSlot d L fx a sm n = iprop(∃ g, Transfers.Flight countersEmb (thr d L) (SemLoc.dma sm) (default : HIx 22) NN
      iprop((a.view.loc (thr d L) ↦{fullShare} g) ∗ xtPiece d L fx n)) := by unfold inSlot; rw [if_pos v]
theorem inSlot_neg {a : Memref sig .scVector .vmem S8x3200 .f32} {sm : DmaSem sig} {n : ℕ} (v : ¬ valid L n) :
    inSlot d L fx a sm n = iprop((∃ g, a.view.loc (thr d L) ↦{fullShare} g) ∗ semVal (thr d L, SemLoc.dma sm) 0) := by
  unfold inSlot; rw [if_neg v]
theorem outSlot_pos {a : Memref sig .scVector .vmem S25600 .f32} {sm : DmaSem sig} {m : ℕ} (h : 2 ≤ m ∧ valid L (m - 2)) :
    outSlot (F := F) d L a sm m = iprop(∃ g, Transfers.Flight countersEmb (thr d L) (SemLoc.dma sm) (default : HIx 22) NN
        iprop(oPiece (F := F) d L (m - 2) ∗ ((stg a).view.loc (thr d L) ↦[(stg a).view.set]{fullShare} g))
      ∗ (a.view.loc (thr d L) ↦[Finset.univ \ (stg a).view.set]{fullShare} g)) := by unfold outSlot; rw [if_pos h]
theorem outSlot_neg {a : Memref sig .scVector .vmem S25600 .f32} {sm : DmaSem sig} {m : ℕ} (h : ¬ (2 ≤ m ∧ valid L (m - 2))) :
    outSlot (F := F) d L a sm m = iprop((∃ g, a.view.loc (thr d L) ↦{fullShare} g) ∗ semVal (thr d L, SemLoc.dma sm) 0) := by
  unfold outSlot; rw [if_neg h]

/-- A fetch in flight, its source window spelt by any offsets equal to piece `n`'s, fills the fetch slot for `n`. -/
theorem fl_in {off : Fin 2 → ℕ} {n : ℕ} (h : off = ![9, pos L n]) (p : ∀ a, off a + S1x3200.size a ≤ S22x1600000.size a) (v : valid L n)
    (a : Memref sig .scVector .vmem S8x3200 .f32) (sm : DmaSem sig) :
    (iprop(∃ g, Transfers.Flight countersEmb (thr d L) (SemLoc.dma sm) (default : HIx 22) NN
        iprop((a.view.loc (thr d L) ↦{fullShare} g)
          ∗ (((xtW).slice (Rect.unit (s := S22x1600000) off S1x3200.size p) (fun _ => rfl)).view.loc (thr d L)
              ↦[((xtW).slice (Rect.unit (s := S22x1600000) off S1x3200.size p) (fun _ => rfl)).view.set]{fullShare} fx))) : sProp 𝕄)
      ⊢ inSlot d L fx a sm n := by
  rw [inSlot_pos d L fx v]
  iintro ⟨%g, H⟩
  have hD : (iprop((a.view.loc (thr d L) ↦{fullShare} g)
          ∗ (((xtW).slice (Rect.unit (s := S22x1600000) off S1x3200.size p) (fun _ => rfl)).view.loc (thr d L)
              ↦[((xtW).slice (Rect.unit (s := S22x1600000) off S1x3200.size p) (fun _ => rfl)).view.set]{fullShare} fx)) : sProp 𝕄)
      ⊢ iprop((a.view.loc (thr d L) ↦{fullShare} g) ∗ xtPiece d L fx n) := by
    iintro ⟨H1, H2⟩
    isplitl [H1]; · iexact H1
    iapply (Entails.of_eq (in_congr d L h p (in_inb L n) fx)); iexact H2
  iexists g
  iapply (Transfers.Flight_mono countersEmb (thr d L) hD); iexact H

/-- A write-out in flight, its destination window spelt by any offsets equal to piece `n`'s, with the rest of the
    staging buffer, fills the write-out slot for `n + 2`. -/
theorem fl_out {off : Fin 1 → ℕ} {n : ℕ} (h : off = ![pos L n]) (p : ∀ a, off a + S3200.size a ≤ S1600000.size a) (v : valid L n)
    (a : Memref sig .scVector .vmem S25600 .f32) (sm : DmaSem sig) :
    (iprop(∃ (f : Buf (Elt F) ((oW).view.loc (thr d L))) (g : Buf (Elt F) (a.view.loc (thr d L))), Transfers.Flight countersEmb (thr d L) (SemLoc.dma sm) (default : HIx 22) NN
        iprop((((oW).slice (Rect.unit (s := S1600000) off S3200.size p) (fun _ => rfl)).view.loc (thr d L)
              ↦[((oW).slice (Rect.unit (s := S1600000) off S3200.size p) (fun _ => rfl)).view.set]{fullShare} f)
          ∗ ((stg a).view.loc (thr d L) ↦[(stg a).view.set]{fullShare} g))
        ∗ (a.view.loc (thr d L) ↦[Finset.univ \ (stg a).view.set]{fullShare} g)) : sProp 𝕄)
      ⊢ outSlot (F := F) d L a sm (n + 2) := by
  rw [outSlot_pos (F := F) d L (m := n + 2) ⟨by omega, by simpa using v⟩]
  iintro ⟨%f, %g, H, R⟩
  have hD : (iprop((((oW).slice (Rect.unit (s := S1600000) off S3200.size p) (fun _ => rfl)).view.loc (thr d L)
              ↦[((oW).slice (Rect.unit (s := S1600000) off S3200.size p) (fun _ => rfl)).view.set]{fullShare} f)
          ∗ ((stg a).view.loc (thr d L) ↦[(stg a).view.set]{fullShare} g)) : sProp 𝕄)
      ⊢ iprop(oPiece (F := F) d L (n + 2 - 2) ∗ ((stg a).view.loc (thr d L) ↦[(stg a).view.set]{fullShare} g)) := by
    rw [Nat.add_sub_cancel]
    iintro ⟨H1, H2⟩
    isplitl [H1]
    · iexists f; iapply (Entails.of_eq (out_congr d L h p (out_inb L n) f)); iexact H1
    · iexact H2
  iexists g
  isplitl [H]
  · iapply (Transfers.Flight_mono countersEmb (thr d L) hD); iexact H
  · iexact R

/-! The pieces outside the slots, from one trip to the next. -/
def xCore (k : ℕ) : Finset ℕ := (Finset.range 18).filter fun n => n ≠ 2 * k ∧ n ≠ 2 * k + 1 ∧ n ≠ 2 * k + 2 ∧ n ≠ 2 * k + 3
def oCore (k : ℕ) : Finset ℕ := (Finset.range 18).filter fun n => n + 2 ≠ 2 * k ∧ n + 2 ≠ 2 * k + 1 ∧ n ≠ 2 * k ∧ n ≠ 2 * k + 1

omit [FloatOps F] in
theorem xSet_out (Φ : ℕ → sProp 𝕄) (k : ℕ) (hk : k < 8) : bigSep (xSet k) Φ = iprop(Φ (2 * k + 2) ∗ Φ (2 * k + 3) ∗ bigSep (xCore k) Φ) := by
  have e : ((xSet k).erase (2 * k + 2)).erase (2 * k + 3) = xCore k := by
    ext n; simp only [xSet, xCore, Finset.mem_erase, Finset.mem_filter, Finset.mem_range]; omega
  rw [← e]; exact two_out (by simp only [xSet, Finset.mem_filter, Finset.mem_range]; omega) (by simp only [xSet, Finset.mem_filter, Finset.mem_range]; omega) (by omega)
omit [FloatOps F] in
theorem xSet_in (Φ : ℕ → sProp 𝕄) (k : ℕ) (hk : k < 8) : bigSep (xSet (k + 1)) Φ = iprop(Φ (2 * k) ∗ Φ (2 * k + 1) ∗ bigSep (xCore k) Φ) := by
  have e : ((xSet (k + 1)).erase (2 * k)).erase (2 * k + 1) = xCore k := by
    ext n; simp only [xSet, xCore, Finset.mem_erase, Finset.mem_filter, Finset.mem_range]; omega
  rw [← e]; exact two_out (by simp only [xSet, Finset.mem_filter, Finset.mem_range]; omega) (by simp only [xSet, Finset.mem_filter, Finset.mem_range]; omega) (by omega)
omit [FloatOps F] in
theorem oSet_out (Φ : ℕ → sProp 𝕄) (k : ℕ) (hk : k < 8) : bigSep (oSet k) Φ = iprop(Φ (2 * k) ∗ Φ (2 * k + 1) ∗ bigSep (oCore k) Φ) := by
  have e : ((oSet k).erase (2 * k)).erase (2 * k + 1) = oCore k := by
    ext n; simp only [oSet, oCore, Finset.mem_erase, Finset.mem_filter, Finset.mem_range]; omega
  rw [← e]; exact two_out (by simp only [oSet, Finset.mem_filter, Finset.mem_range]; omega) (by simp only [oSet, Finset.mem_filter, Finset.mem_range]; omega) (by omega)
omit [FloatOps F] in
theorem oSet_in (Φ : ℕ → sProp 𝕄) (k : ℕ) (hk : k < 8) (hk1 : 1 ≤ k) :
    bigSep (oSet (k + 1)) Φ = iprop(Φ (2 * k - 2) ∗ Φ (2 * k - 1) ∗ bigSep (oCore k) Φ) := by
  have e : ((oSet (k + 1)).erase (2 * k - 2)).erase (2 * k - 1) = oCore k := by
    ext n; simp only [oSet, oCore, Finset.mem_erase, Finset.mem_filter, Finset.mem_range]; omega
  rw [← e]; exact two_out (by simp only [oSet, Finset.mem_filter, Finset.mem_range]; omega) (by simp only [oSet, Finset.mem_filter, Finset.mem_range]; omega) (by omega)

theorem xP_pos {n : ℕ} (v : valid L n) : xP d L fx n = xtPiece d L fx n := if_pos v
theorem oP_pos {n : ℕ} (v : valid L n) : oP (F := F) d L n = oPiece (F := F) d L n := if_pos v
theorem xP_neg {n : ℕ} (v : ¬ valid L n) : xP d L fx n = iprop(emp) := if_neg v
theorem oP_neg {n : ℕ} (v : ¬ valid L n) : oP (F := F) d L n = iprop(emp) := if_neg v

/-- Piece `n` of the result at its final contents: row 9 of the transposed argument. -/
def oQ (n : ℕ) : sProp 𝕄 :=
  if valid L n then (outM L n).view.loc (thr d L) ↦[(outM L n).view.set]{fullShare} (Cert.Spec.row 9 fx) else iprop(emp)

/-- What a tile is handed for the call: its pieces of row 9 of the transposed argument, at the argument's contents, and
    its pieces of the result at some contents. What it hands back: the same pieces of the argument, and its pieces of
    the result holding the row. -/
def goRes : sProp 𝕄 := iprop(bigSep (Finset.range 18) (xP d L fx) ∗ bigSep (Finset.range 18) (oP (F := F) d L))
def tdRes : sProp 𝕄 := iprop(bigSep (Finset.range 18) (xP d L fx) ∗ bigSep (Finset.range 18) (oQ d L fx))

end Tile

end Cert.Proof.TileB9

end
-- ==== Proof.TileB10Defs.lean ====
/-
  One vector subcore's task of copy kernel 10 (counting from 0): definitions. The task moves its pieces of row 10 of the
  transposed argument (pieces of 3200 consecutive elements, piece number 2·s + c + 32·n for the subcore (c, s) and
  n = 0, 1, … while that number is below 500) into the flat result: each piece is fetched into a staging row, copied
  16 lanes at a time into a flat staging buffer, and written out, two pieces in flight at a time. Here: the pieces as
  memrefs, the program's own spellings of them, the printed conditions as facts about the trip, the two slots' states
  between trips, and what the tile holds outside the slots.
-/
import proofs.«206869_g37898791420194_cont_8to1_b_558_20_alg».proof.Defs
import Idealize.ShloMosaic.Lib.SparseCore.Launch
import Idealize.ShloMosaic.Lib.StableHlo.Run
import Idealize.ShloMosaic.Lib.Pipeline.Kit
import Idealize.ShloMosaic.Lib.Tactic
import proofs.«206869_g37898791420194_cont_8to1_b_558_20_alg».proof.Proof.Gen.Kernel
import proofs.«206869_g37898791420194_cont_8to1_b_558_20_alg».proof.Proof.Gen.Kernel.Skeleton
import proofs.«206869_g37898791420194_cont_8to1_b_558_20_alg».proof.Proof.Spec

noncomputable section

namespace Cert.Proof.TileB10

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

abbrev ΛP : Labels := Pipeline.Sig Λ₀ (Fin 0) fun p => (pcfgs (F := F) p).Adm
abbrev K : SparseCore.Cfg τ sig (ΛP (F := F)) 22 := sc (F := F)
abbrev 𝒱₀ : Variants := Variants.none

abbrev UH : Type := URounds (GSem nD τ sig) ℕ
abbrev UU : Type := UH × Counters

local notation "𝕄" => MT nD τ sig (HIx 22) (Elt F) ℕ UU ℕ

local notation "xtW" => (Memref.whole Cert.Kernel.main_v0_scv : Memref Cert.Kernel.sig Kind.scVector Space.hbm Cert.Kernel.S22x1600000 EltTy.f32)
local notation "oW" => (Memref.whole Cert.Kernel.main_v11_scv : Memref Cert.Kernel.sig Kind.scVector Space.hbm Cert.Kernel.S1600000 EltTy.f32)
local notation "a4" => (Memref.whole Cert.Kernel.cc10_scratch0 : Memref Cert.Kernel.sig Kind.scVector Space.vmem Cert.Kernel.S8x3200 EltTy.f32)
local notation "a5" => (Memref.whole Cert.Kernel.cc10_scratch1 : Memref Cert.Kernel.sig Kind.scVector Space.vmem Cert.Kernel.S8x3200 EltTy.f32)
local notation "a6" => (Memref.whole Cert.Kernel.cc10_scratch2 : Memref Cert.Kernel.sig Kind.scVector Space.vmem Cert.Kernel.S25600 EltTy.f32)
local notation "a7" => (Memref.whole Cert.Kernel.cc10_scratch3 : Memref Cert.Kernel.sig Kind.scVector Space.vmem Cert.Kernel.S25600 EltTy.f32)

variable [FloatOps F]

section Tile

variable (d : Dev nD) (L : grid10.Coords)

abbrev cV (L : grid10.Coords) : Fin τ.nSC := (L 0).castLE hcore10
abbrev jV (L : grid10.Coords) : Fin τ.nSub := (L 1).castLE hsub10
abbrev thr (d : Dev nD) (L : grid10.Coords) : Thread nD τ := V d (cV L) (jV L)

/-- The tile's number 2·s + c, and whether it has sixteen pieces (numbers below 20) or fifteen. -/
abbrev wid (L : grid10.Coords) : ℕ := 2 * (L 1).val + (L 0).val
abbrev big (L : grid10.Coords) : Prop := wid L < 20

omit [FloatOps F] in
theorem wid_lt (L : grid10.Coords) : wid L < 32 := by
  have h0 : (L 0).val < 2 := (L 0).isLt
  have h1 : (L 1).val < 16 := (L 1).isLt
  unfold wid; omega

/-- Piece `n` of the tile exists: `n < 15`, or `n = 15` on a tile with sixteen pieces. It is the piece number
    `wid + 32·n < 500` of the row. -/
def valid (L : grid10.Coords) (n : ℕ) : Prop := n < 15 ∨ (n = 15 ∧ big L)
instance (L : grid10.Coords) (n : ℕ) : Decidable (valid L n) := by unfold valid big; infer_instance

omit [FloatOps F] in
theorem valid_iff (L : grid10.Coords) (n : ℕ) : valid L n ↔ wid L + 32 * n < 500 := by
  have := wid_lt L; unfold valid big; omega

/-- Where piece `n` starts in the row (clamped to the last piece of the row, so that the rectangle is in bounds for
    every `n`; for a valid piece the clamp is idle). -/
abbrev pos (L : grid10.Coords) (n : ℕ) : ℕ := 3200 * min (wid L + 32 * n) 499

omit [FloatOps F] in
theorem pos_valid {L : grid10.Coords} {n : ℕ} (h : valid L n) : pos L n = 6400 * (L 1).val + 3200 * (L 0).val + 102400 * n := by
  have := (valid_iff L n).mp h; unfold pos wid at *; omega

omit [FloatOps F] in
theorem in_inb (L : grid10.Coords) (n : ℕ) : ∀ a, (![10, pos L n] : Fin 2 → ℕ) a + S1x3200.size a ≤ S22x1600000.size a := by
  intro a; fin_cases a
  · show 10 + 1 ≤ 22; omega
  · show pos L n + 3200 ≤ 1600000; unfold pos; omega
omit [FloatOps F] in
theorem out_inb (L : grid10.Coords) (n : ℕ) : ∀ a, (![pos L n] : Fin 1 → ℕ) a + S3200.size a ≤ S1600000.size a := by
  intro a; fin_cases a
  show pos L n + 3200 ≤ 1600000; unfold pos; omega

/-- Piece `n` of row 10 of the transposed argument, and piece `n` of the flat result, as memrefs of the tile. -/
abbrev inM (L : grid10.Coords) (n : ℕ) : Memref sig .scVector .hbm S1x3200 .f32 :=
  (xtW).slice (Rect.unit (s := S22x1600000) ![10, pos L n] S1x3200.size (in_inb L n)) (fun _ => rfl)
abbrev outM (L : grid10.Coords) (n : ℕ) : Memref sig .scVector .hbm S3200 .f32 :=
  (oW).slice (Rect.unit (s := S1600000) ![pos L n] S3200.size (out_inb L n)) (fun _ => rfl)

/-! The program's own slices are these pieces: by the closed forms of its offset functions. -/

omit [FloatOps F] in
theorem off2 {a b : ℕ} (h : a = b) : (![10, a] : Fin 2 → ℕ) = ![10, b] := by rw [h]
omit [FloatOps F] in
theorem off1' {a b : ℕ} (h : a = b) : (![a] : Fin 1 → ℕ) = ![b] := by rw [h]

omit [FloatOps F] in
theorem off_in0 (L : grid10.Coords) (h : valid L 0) : k10_off1 L 0#32 = ![10, pos L 0] :=
  (k10_off1_eq L 0).trans (off2 (by rw [pos_valid h]; simp))
omit [FloatOps F] in
theorem off_in1 (L : grid10.Coords) (h : valid L 1) : k10_off1 L 32#32 = ![10, pos L 1] :=
  (k10_off1_eq L 1).trans (off2 (by rw [pos_valid h]; simp))
omit [FloatOps F] in
theorem off_6 (L : grid10.Coords) (t : Fin k10_t1_loop.trips) (h : valid L (2 * t.val + 2)) : k10_off6 L t = ![10, pos L (2 * t.val + 2)] :=
  (k10_off6_eq L t).trans (off2 (by rw [pos_valid h]; omega))
omit [FloatOps F] in
theorem off_11 (L : grid10.Coords) (t : Fin k10_t1_loop.trips) (h : valid L (2 * t.val + 3)) : k10_off11 L t = ![10, pos L (2 * t.val + 3)] :=
  (k10_off11_eq L t).trans (off2 (by rw [pos_valid h]; omega))
omit [FloatOps F] in
theorem off_5 (L : grid10.Coords) (t : Fin k10_t1_loop.trips) (h : valid L (2 * t.val)) : k10_off5 L t = ![pos L (2 * t.val)] :=
  (k10_off5_eq L t).trans (off1' (by rw [pos_valid h]; omega))
omit [FloatOps F] in
theorem off_10 (L : grid10.Coords) (t : Fin k10_t1_loop.trips) (h : valid L (2 * t.val + 1)) : k10_off10 L t = ![pos L (2 * t.val + 1)] :=
  (k10_off10_eq L t).trans (off1' (by rw [pos_valid h]; omega))

/-- Holding a 1 × 3200 window of the transposed argument, or a 3200 window of the result, by exactly its elements
    says the same whichever way the window's offsets are spelt. -/
theorem in_congr {off off' : Fin 2 → ℕ} (h : off = off') (p : ∀ a, off a + S1x3200.size a ≤ S22x1600000.size a)
    (p' : ∀ a, off' a + S1x3200.size a ≤ S22x1600000.size a) (f : Buf (Elt F) ((xtW).view.loc (thr d L))) :
    (((xtW).slice (Rect.unit (s := S22x1600000) off S1x3200.size p) (fun _ => rfl)).view.loc (thr d L)
        ↦[((xtW).slice (Rect.unit (s := S22x1600000) off S1x3200.size p) (fun _ => rfl)).view.set]{fullShare} f : sProp 𝕄)
      = (((xtW).slice (Rect.unit (s := S22x1600000) off' S1x3200.size p') (fun _ => rfl)).view.loc (thr d L)
        ↦[((xtW).slice (Rect.unit (s := S22x1600000) off' S1x3200.size p') (fun _ => rfl)).view.set]{fullShare} f) := by
  subst h; rfl
theorem out_congr {off off' : Fin 1 → ℕ} (h : off = off') (p : ∀ a, off a + S3200.size a ≤ S1600000.size a)
    (p' : ∀ a, off' a + S3200.size a ≤ S1600000.size a) (f : Buf (Elt F) ((oW).view.loc (thr d L))) :
    (((oW).slice (Rect.unit (s := S1600000) off S3200.size p) (fun _ => rfl)).view.loc (thr d L)
        ↦[((oW).slice (Rect.unit (s := S1600000) off S3200.size p) (fun _ => rfl)).view.set]{fullShare} f : sProp 𝕄)
      = (((oW).slice (Rect.unit (s := S1600000) off' S3200.size p') (fun _ => rfl)).view.loc (thr d L)
        ↦[((oW).slice (Rect.unit (s := S1600000) off' S3200.size p') (fun _ => rfl)).view.set]{fullShare} f) := by
  subst h; rfl

/-! The printed conditions, as facts about the trip and the tile. -/

omit [FloatOps F] in
theorem trips1 : k10_t1_loop.trips = 8 := by decide
omit [FloatOps F] in
theorem cond1_iff : ∀ (t : Fin k10_t1_loop.trips), k10_cond1 t = 1#1 ↔ 1 ≤ t.val := by decide +kernel
omit [FloatOps F] in
theorem cond2_iff : ∀ (L : grid10.Coords) (t : Fin k10_t1_loop.trips), k10_cond2 L t = 1#1 := by decide +kernel
omit [FloatOps F] in
theorem cond3_iff : ∀ (L : grid10.Coords) (t : Fin k10_t1_loop.trips), k10_cond3 L t = 1#1 ↔ t.val ≤ 6 := by decide +kernel
omit [FloatOps F] in
theorem cond4_iff : ∀ (t : Fin k10_t1_loop.trips), k10_cond4 t = 1#1 ↔ 1 ≤ t.val := by decide +kernel
omit [FloatOps F] in
theorem cond5_iff : ∀ (L : grid10.Coords) (t : Fin k10_t1_loop.trips), k10_cond5 L t = 1#1 ↔ (t.val ≤ 6 ∨ big L) := by decide +kernel
omit [FloatOps F] in
theorem cond6_iff : ∀ (L : grid10.Coords) (t : Fin k10_t1_loop.trips), k10_cond6 L t = 1#1 ↔ (t.val ≤ 5 ∨ (t.val = 6 ∧ big L)) := by decide +kernel
omit [FloatOps F] in
theorem cond7_iff : ∀ (L : grid10.Coords), k10_cond7 L = 1#1 := by decide +kernel
omit [FloatOps F] in
theorem cond8_iff : ∀ (L : grid10.Coords), k10_cond8 L = 1#1 ↔ big L := by decide +kernel

variable (O : CellTallies nD τ sig (HIx 22)) (W : Waits sig (HIx 22))
variable (fx : Buf (Elt F) ((xtW).view.loc (thr d L)))

abbrev NN : ℕ := 102400

/-- The 3200-element window of a flat staging buffer that a piece is written out from. -/
abbrev stg (a : Memref sig .scVector .vmem S25600 .f32) : Memref sig .scVector .vmem S3200 .f32 :=
  a.slice (Rect.unit (s := S25600) ![0] S3200.size inb_S25600_S3200_0) (fun _ => rfl)

/-- Piece `n` of the argument row held by exactly its elements, at the argument's contents; piece `n` of the result
    held by exactly its elements, at some contents. -/
abbrev xtPiece (n : ℕ) : sProp 𝕄 := (inM L n).view.loc (thr d L) ↦[(inM L n).view.set]{fullShare} fx
abbrev oPiece (n : ℕ) : sProp 𝕄 := iprop(∃ f, (outM L n).view.loc (thr d L) ↦[(outM L n).view.set]{fullShare} f)

/-- The lane-copy loop of a slot: the staging row keeps its contents, the flat staging buffer holds some contents. -/
def laneInv0 (g4 : Buf (Elt F) ((a4).view.loc (thr d L))) (_ : ℕ) (_ : PUnit) : sProp 𝕄 :=
  iprop(((a4).view.loc (thr d L) ↦{fullShare} g4) ∗ (∃ g, (a6).view.loc (thr d L) ↦{fullShare} g))
def laneInv1 (g5 : Buf (Elt F) ((a5).view.loc (thr d L))) (_ : ℕ) (_ : PUnit) : sProp 𝕄 :=
  iprop(((a5).view.loc (thr d L) ↦{fullShare} g5) ∗ (∃ g, (a7).view.loc (thr d L) ↦{fullShare} g))

/-- A fetch slot before trip work on piece `n`: the piece's fetch in flight (it will hand back the staging row at some
    contents, and the piece), or, when there is no such piece, the slot idle. -/
def inSlot (a : Memref sig .scVector .vmem S8x3200 .f32) (sm : DmaSem sig) (n : ℕ) : sProp 𝕄 :=
  if valid L n then
    iprop(∃ g, Transfers.Flight countersEmb (thr d L) (SemLoc.dma sm) (default : HIx 22) NN
      iprop((a.view.loc (thr d L) ↦{fullShare} g) ∗ xtPiece d L fx n))
  else iprop((∃ g, a.view.loc (thr d L) ↦{fullShare} g) ∗ semVal (thr d L, SemLoc.dma sm) 0)

/-- A write-out slot before trip work on piece `m`: piece `m - 2`'s write-out in flight (it will hand back that piece
    of the result at some contents, and the staging window), the rest of the staging buffer beside it; or idle. -/
def outSlot (a : Memref sig .scVector .vmem S25600 .f32) (sm : DmaSem sig) (m : ℕ) : sProp 𝕄 :=
  if 2 ≤ m ∧ valid L (m - 2) then
    iprop(∃ g, Transfers.Flight countersEmb (thr d L) (SemLoc.dma sm) (default : HIx 22) NN
        iprop(oPiece d L (m - 2) ∗ ((stg a).view.loc (thr d L) ↦[(stg a).view.set]{fullShare} g))
      ∗ (a.view.loc (thr d L) ↦[Finset.univ \ (stg a).view.set]{fullShare} g))
  else iprop((∃ g, a.view.loc (thr d L) ↦{fullShare} g) ∗ semVal (thr d L, SemLoc.dma sm) 0)

/-- Piece `n` when it exists, nothing otherwise. -/
def xP (n : ℕ) : sProp 𝕄 := if valid L n then xtPiece d L fx n else iprop(emp)
def oP (n : ℕ) : sProp 𝕄 := if valid L n then oPiece d L n else iprop(emp)

/-- What the tile holds outside the slots before trip `t`: every piece of the argument row but those being fetched
    (`2t`, `2t + 1`), every piece of the result but those being written out (`2t - 2`, `2t - 1`). -/
def xSet (t : ℕ) : Finset ℕ := (Finset.range 18).filter fun n => n ≠ 2 * t ∧ n ≠ 2 * t + 1
def oSet (t : ℕ) : Finset ℕ := (Finset.range 18).filter fun n => n + 2 ≠ 2 * t ∧ n + 2 ≠ 2 * t + 1

def inv (t : ℕ) (_ : PUnit) : sProp 𝕄 :=
  iprop(Transfers.MayWaits (thr d L) (none : HIx 22) O
    ∗ (∃ W', ⌜∀ p ∈ W', p ∈ W ∨ p.2 = none⌝ ∗ owes (thr d L) O W')
    ∗ bigSep (xSet t) (xP d L fx) ∗ bigSep (oSet t) (oP d L)
    ∗ inSlot d L fx a4 cc10_scratch4.sem (2 * t) ∗ outSlot d L a6 cc10_scratch6.sem (2 * t)
    ∗ inSlot d L fx a5 cc10_scratch5.sem (2 * t + 1) ∗ outSlot d L a7 cc10_scratch7.sem (2 * t + 1))

omit [FloatOps F] in
theorem two_out {Φ : ℕ → sProp 𝕄} {s : Finset ℕ} {a b : ℕ} (ha : a ∈ s) (hb : b ∈ s) (hab : a ≠ b) :
    bigSep s Φ = iprop(Φ a ∗ Φ b ∗ bigSep ((s.erase a).erase b) Φ) := by
  rw [SparseCore.bigSep_erase' ha, SparseCore.bigSep_erase' (Finset.mem_erase.mpr ⟨fun e => hab e.symm, hb⟩)]

omit [FloatOps F] in
theorem range18_split : (Finset.range 18) = insert 0 (insert 1 (xSet 0)) := by decide

theorem xRange_split (v0 : valid L 0) (v1 : valid L 1) :
    bigSep (Finset.range 18) (xP d L fx) = iprop(xtPiece d L fx 0 ∗ xtPiece d L fx 1 ∗ bigSep (xSet 0) (xP d L fx)) := by
  rw [range18_split, SparseCore.bigSep_insert' (by decide), SparseCore.bigSep_insert' (by decide)]
  unfold xP; rw [if_pos v0, if_pos v1]
omit [FloatOps F] in
theorem oSet_zero : oSet 0 = Finset.range 18 := by decide

theorem inSlot_pos {a : Memref sig .scVector .vmem S8x3200 .f32} {sm : DmaSem sig} {n : ℕ} (v : valid L n) :
    inSlot d L fx a sm n = iprop(∃ g, Transfers.Flight countersEmb (thr d L) (SemLoc.dma sm) (default : HIx 22) NN
      iprop((a.view.loc (thr d L) ↦{fullShare} g) ∗ xtPiece d L fx n)) := by unfold inSlot; rw [if_pos v]
theorem inSlot_neg {a : Memref sig .scVector .vmem S8x3200 .f32} {sm : DmaSem sig} {n : ℕ} (v : ¬ valid L n) :
    inSlot d L fx a sm n = iprop((∃ g, a.view.loc (thr d L) ↦{fullShare} g) ∗ semVal (thr d L, SemLoc.dma sm) 0) := by
  unfold inSlot; rw [if_neg v]
theorem outSlot_pos {a : Memref sig .scVector .vmem S25600 .f32} {sm : DmaSem sig} {m : ℕ} (h : 2 ≤ m ∧ valid L (m - 2)) :
    outSlot (F := F) d L a sm m = iprop(∃ g, Transfers.Flight countersEmb (thr d L) (SemLoc.dma sm) (default : HIx 22) NN
        iprop(oPiece (F := F) d L (m - 2) ∗ ((stg a).view.loc (thr d L) ↦[(stg a).view.set]{fullShare} g))
      ∗ (a.view.loc (thr d L) ↦[Finset.univ \ (stg a).view.set]{fullShare} g)) := by unfold outSlot; rw [if_pos h]
theorem outSlot_neg {a : Memref sig .scVector .vmem S25600 .f32} {sm : DmaSem sig} {m : ℕ} (h : ¬ (2 ≤ m ∧ valid L (m - 2))) :
    outSlot (F := F) d L a sm m = iprop((∃ g, a.view.loc (thr d L) ↦{fullShare} g) ∗ semVal (thr d L, SemLoc.dma sm) 0) := by
  unfold outSlot; rw [if_neg h]

/-- A fetch in flight, its source window spelt by any offsets equal to piece `n`'s, fills the fetch slot for `n`. -/
theorem fl_in {off : Fin 2 → ℕ} {n : ℕ} (h : off = ![10, pos L n]) (p : ∀ a, off a + S1x3200.size a ≤ S22x1600000.size a) (v : valid L n)
    (a : Memref sig .scVector .vmem S8x3200 .f32) (sm : DmaSem sig) :
    (iprop(∃ g, Transfers.Flight countersEmb (thr d L) (SemLoc.dma sm) (default : HIx 22) NN
        iprop((a.view.loc (thr d L) ↦{fullShare} g)
          ∗ (((xtW).slice (Rect.unit (s := S22x1600000) off S1x3200.size p) (fun _ => rfl)).view.loc (thr d L)
              ↦[((xtW).slice (Rect.unit (s := S22x1600000) off S1x3200.size p) (fun _ => rfl)).view.set]{fullShare} fx))) : sProp 𝕄)
      ⊢ inSlot d L fx a sm n := by
  rw [inSlot_pos d L fx v]
  iintro ⟨%g, H⟩
  have hD : (iprop((a.view.loc (thr d L) ↦{fullShare} g)
          ∗ (((xtW).slice (Rect.unit (s := S22x1600000) off S1x3200.size p) (fun _ => rfl)).view.loc (thr d L)
              ↦[((xtW).slice (Rect.unit (s := S22x1600000) off S1x3200.size p) (fun _ => rfl)).view.set]{fullShare} fx)) : sProp 𝕄)
      ⊢ iprop((a.view.loc (thr d L) ↦{fullShare} g) ∗ xtPiece d L fx n) := by
    iintro ⟨H1, H2⟩
    isplitl [H1]; · iexact H1
    iapply (Entails.of_eq (in_congr d L h p (in_inb L n) fx)); iexact H2
  iexists g
  iapply (Transfers.Flight_mono countersEmb (thr d L) hD); iexact H

/-- A write-out in flight, its destination window spelt by any offsets equal to piece `n`'s, with the rest of the
    staging buffer, fills the write-out slot for `n + 2`. -/
theorem fl_out {off : Fin 1 → ℕ} {n : ℕ} (h : off = ![pos L n]) (p : ∀ a, off a + S3200.size a ≤ S1600000.size a) (v : valid L n)
    (a : Memref sig .scVector .vmem S25600 .f32) (sm : DmaSem sig) :
    (iprop(∃ (f : Buf (Elt F) ((oW).view.loc (thr d L))) (g : Buf (Elt F) (a.view.loc (thr d L))), Transfers.Flight countersEmb (thr d L) (SemLoc.dma sm) (default : HIx 22) NN
        iprop((((oW).slice (Rect.unit (s := S1600000) off S3200.size p) (fun _ => rfl)).view.loc (thr d L)
              ↦[((oW).slice (Rect.unit (s := S1600000) off S3200.size p) (fun _ => rfl)).view.set]{fullShare} f)
          ∗ ((stg a).view.loc (thr d L) ↦[(stg a).view.set]{fullShare} g))
        ∗ (a.view.loc (thr d L) ↦[Finset.univ \ (stg a).view.set]{fullShare} g)) : sProp 𝕄)
      ⊢ outSlot (F := F) d L a sm (n + 2) := by
  rw [outSlot_pos (F := F) d L (m := n + 2) ⟨by omega, by simpa using v⟩]
  iintro ⟨%f, %g, H, R⟩
  have hD : (iprop((((oW).slice (Rect.unit (s := S1600000) off S3200.size p) (fun _ => rfl)).view.loc (thr d L)
              ↦[((oW).slice (Rect.unit (s := S1600000) off S3200.size p) (fun _ => rfl)).view.set]{fullShare} f)
          ∗ ((stg a).view.loc (thr d L) ↦[(stg a).view.set]{fullShare} g)) : sProp 𝕄)
      ⊢ iprop(oPiece (F := F) d L (n + 2 - 2) ∗ ((stg a).view.loc (thr d L) ↦[(stg a).view.set]{fullShare} g)) := by
    rw [Nat.add_sub_cancel]
    iintro ⟨H1, H2⟩
    isplitl [H1]
    · iexists f; iapply (Entails.of_eq (out_congr d L h p (out_inb L n) f)); iexact H1
    · iexact H2
  iexists g
  isplitl [H]
  · iapply (Transfers.Flight_mono countersEmb (thr d L) hD); iexact H
  · iexact R

/-! The pieces outside the slots, from one trip to the next. -/
def xCore (k : ℕ) : Finset ℕ := (Finset.range 18).filter fun n => n ≠ 2 * k ∧ n ≠ 2 * k + 1 ∧ n ≠ 2 * k + 2 ∧ n ≠ 2 * k + 3
def oCore (k : ℕ) : Finset ℕ := (Finset.range 18).filter fun n => n + 2 ≠ 2 * k ∧ n + 2 ≠ 2 * k + 1 ∧ n ≠ 2 * k ∧ n ≠ 2 * k + 1

omit [FloatOps F] in
theorem xSet_out (Φ : ℕ → sProp 𝕄) (k : ℕ) (hk : k < 8) : bigSep (xSet k) Φ = iprop(Φ (2 * k + 2) ∗ Φ (2 * k + 3) ∗ bigSep (xCore k) Φ) := by
  have e : ((xSet k).erase (2 * k + 2)).erase (2 * k + 3) = xCore k := by
    ext n; simp only [xSet, xCore, Finset.mem_erase, Finset.mem_filter, Finset.mem_range]; omega
  rw [← e]; exact two_out (by simp only [xSet, Finset.mem_filter, Finset.mem_range]; omega) (by simp only [xSet, Finset.mem_filter, Finset.mem_range]; omega) (by omega)
omit [FloatOps F] in
theorem xSet_in (Φ : ℕ → sProp 𝕄) (k : ℕ) (hk : k < 8) : bigSep (xSet (k + 1)) Φ = iprop(Φ (2 * k) ∗ Φ (2 * k + 1) ∗ bigSep (xCore k) Φ) := by
  have e : ((xSet (k + 1)).erase (2 * k)).erase (2 * k + 1) = xCore k := by
    ext n; simp only [xSet, xCore, Finset.mem_erase, Finset.mem_filter, Finset.mem_range]; omega
  rw [← e]; exact two_out (by simp only [xSet, Finset.mem_filter, Finset.mem_range]; omega) (by simp only [xSet, Finset.mem_filter, Finset.mem_range]; omega) (by omega)
omit [FloatOps F] in
theorem oSet_out (Φ : ℕ → sProp 𝕄) (k : ℕ) (hk : k < 8) : bigSep (oSet k) Φ = iprop(Φ (2 * k) ∗ Φ (2 * k + 1) ∗ bigSep (oCore k) Φ) := by
  have e : ((oSet k).erase (2 * k)).erase (2 * k + 1) = oCore k := by
    ext n; simp only [oSet, oCore, Finset.mem_erase, Finset.mem_filter, Finset.mem_range]; omega
  rw [← e]; exact two_out (by simp only [oSet, Finset.mem_filter, Finset.mem_range]; omega) (by simp only [oSet, Finset.mem_filter, Finset.mem_range]; omega) (by omega)
omit [FloatOps F] in
theorem oSet_in (Φ : ℕ → sProp 𝕄) (k : ℕ) (hk : k < 8) (hk1 : 1 ≤ k) :
    bigSep (oSet (k + 1)) Φ = iprop(Φ (2 * k - 2) ∗ Φ (2 * k - 1) ∗ bigSep (oCore k) Φ) := by
  have e : ((oSet (k + 1)).erase (2 * k - 2)).erase (2 * k - 1) = oCore k := by
    ext n; simp only [oSet, oCore, Finset.mem_erase, Finset.mem_filter, Finset.mem_range]; omega
  rw [← e]; exact two_out (by simp only [oSet, Finset.mem_filter, Finset.mem_range]; omega) (by simp only [oSet, Finset.mem_filter, Finset.mem_range]; omega) (by omega)

theorem xP_pos {n : ℕ} (v : valid L n) : xP d L fx n = xtPiece d L fx n := if_pos v
theorem oP_pos {n : ℕ} (v : valid L n) : oP (F := F) d L n = oPiece (F := F) d L n := if_pos v
theorem xP_neg {n : ℕ} (v : ¬ valid L n) : xP d L fx n = iprop(emp) := if_neg v
theorem oP_neg {n : ℕ} (v : ¬ valid L n) : oP (F := F) d L n = iprop(emp) := if_neg v

/-- Piece `n` of the result at its final contents: row 10 of the transposed argument. -/
def oQ (n : ℕ) : sProp 𝕄 :=
  if valid L n then (outM L n).view.loc (thr d L) ↦[(outM L n).view.set]{fullShare} (Cert.Spec.row 10 fx) else iprop(emp)

/-- What a tile is handed for the call: its pieces of row 10 of the transposed argument, at the argument's contents, and
    its pieces of the result at some contents. What it hands back: the same pieces of the argument, and its pieces of
    the result holding the row. -/
def goRes : sProp 𝕄 := iprop(bigSep (Finset.range 18) (xP d L fx) ∗ bigSep (Finset.range 18) (oP (F := F) d L))
def tdRes : sProp 𝕄 := iprop(bigSep (Finset.range 18) (xP d L fx) ∗ bigSep (Finset.range 18) (oQ d L fx))

end Tile

end Cert.Proof.TileB10

end
-- ==== Proof.TileB11Defs.lean ====
/-
  One vector subcore's task of copy kernel 11 (counting from 0): definitions. The task moves its pieces of row 11 of the
  transposed argument (pieces of 3200 consecutive elements, piece number 2·s + c + 32·n for the subcore (c, s) and
  n = 0, 1, … while that number is below 500) into the flat result: each piece is fetched into a staging row, copied
  16 lanes at a time into a flat staging buffer, and written out, two pieces in flight at a time. Here: the pieces as
  memrefs, the program's own spellings of them, the printed conditions as facts about the trip, the two slots' states
  between trips, and what the tile holds outside the slots.
-/
import proofs.«206869_g37898791420194_cont_8to1_b_558_20_alg».proof.Defs
import Idealize.ShloMosaic.Lib.SparseCore.Launch
import Idealize.ShloMosaic.Lib.StableHlo.Run
import Idealize.ShloMosaic.Lib.Pipeline.Kit
import Idealize.ShloMosaic.Lib.Tactic
import proofs.«206869_g37898791420194_cont_8to1_b_558_20_alg».proof.Proof.Gen.Kernel
import proofs.«206869_g37898791420194_cont_8to1_b_558_20_alg».proof.Proof.Gen.Kernel.Skeleton
import proofs.«206869_g37898791420194_cont_8to1_b_558_20_alg».proof.Proof.Spec

noncomputable section

namespace Cert.Proof.TileB11

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

abbrev ΛP : Labels := Pipeline.Sig Λ₀ (Fin 0) fun p => (pcfgs (F := F) p).Adm
abbrev K : SparseCore.Cfg τ sig (ΛP (F := F)) 22 := sc (F := F)
abbrev 𝒱₀ : Variants := Variants.none

abbrev UH : Type := URounds (GSem nD τ sig) ℕ
abbrev UU : Type := UH × Counters

local notation "𝕄" => MT nD τ sig (HIx 22) (Elt F) ℕ UU ℕ

local notation "xtW" => (Memref.whole Cert.Kernel.main_v0_scv : Memref Cert.Kernel.sig Kind.scVector Space.hbm Cert.Kernel.S22x1600000 EltTy.f32)
local notation "oW" => (Memref.whole Cert.Kernel.main_v12_scv : Memref Cert.Kernel.sig Kind.scVector Space.hbm Cert.Kernel.S1600000 EltTy.f32)
local notation "a4" => (Memref.whole Cert.Kernel.cc11_scratch0 : Memref Cert.Kernel.sig Kind.scVector Space.vmem Cert.Kernel.S8x3200 EltTy.f32)
local notation "a5" => (Memref.whole Cert.Kernel.cc11_scratch1 : Memref Cert.Kernel.sig Kind.scVector Space.vmem Cert.Kernel.S8x3200 EltTy.f32)
local notation "a6" => (Memref.whole Cert.Kernel.cc11_scratch2 : Memref Cert.Kernel.sig Kind.scVector Space.vmem Cert.Kernel.S25600 EltTy.f32)
local notation "a7" => (Memref.whole Cert.Kernel.cc11_scratch3 : Memref Cert.Kernel.sig Kind.scVector Space.vmem Cert.Kernel.S25600 EltTy.f32)

variable [FloatOps F]

section Tile

variable (d : Dev nD) (L : grid11.Coords)

abbrev cV (L : grid11.Coords) : Fin τ.nSC := (L 0).castLE hcore11
abbrev jV (L : grid11.Coords) : Fin τ.nSub := (L 1).castLE hsub11
abbrev thr (d : Dev nD) (L : grid11.Coords) : Thread nD τ := V d (cV L) (jV L)

/-- The tile's number 2·s + c, and whether it has sixteen pieces (numbers below 20) or fifteen. -/
abbrev wid (L : grid11.Coords) : ℕ := 2 * (L 1).val + (L 0).val
abbrev big (L : grid11.Coords) : Prop := wid L < 20

omit [FloatOps F] in
theorem wid_lt (L : grid11.Coords) : wid L < 32 := by
  have h0 : (L 0).val < 2 := (L 0).isLt
  have h1 : (L 1).val < 16 := (L 1).isLt
  unfold wid; omega

/-- Piece `n` of the tile exists: `n < 15`, or `n = 15` on a tile with sixteen pieces. It is the piece number
    `wid + 32·n < 500` of the row. -/
def valid (L : grid11.Coords) (n : ℕ) : Prop := n < 15 ∨ (n = 15 ∧ big L)
instance (L : grid11.Coords) (n : ℕ) : Decidable (valid L n) := by unfold valid big; infer_instance

omit [FloatOps F] in
theorem valid_iff (L : grid11.Coords) (n : ℕ) : valid L n ↔ wid L + 32 * n < 500 := by
  have := wid_lt L; unfold valid big; omega

/-- Where piece `n` starts in the row (clamped to the last piece of the row, so that the rectangle is in bounds for
    every `n`; for a valid piece the clamp is idle). -/
abbrev pos (L : grid11.Coords) (n : ℕ) : ℕ := 3200 * min (wid L + 32 * n) 499

omit [FloatOps F] in
theorem pos_valid {L : grid11.Coords} {n : ℕ} (h : valid L n) : pos L n = 6400 * (L 1).val + 3200 * (L 0).val + 102400 * n := by
  have := (valid_iff L n).mp h; unfold pos wid at *; omega

omit [FloatOps F] in
theorem in_inb (L : grid11.Coords) (n : ℕ) : ∀ a, (![11, pos L n] : Fin 2 → ℕ) a + S1x3200.size a ≤ S22x1600000.size a := by
  intro a; fin_cases a
  · show 11 + 1 ≤ 22; omega
  · show pos L n + 3200 ≤ 1600000; unfold pos; omega
omit [FloatOps F] in
theorem out_inb (L : grid11.Coords) (n : ℕ) : ∀ a, (![pos L n] : Fin 1 → ℕ) a + S3200.size a ≤ S1600000.size a := by
  intro a; fin_cases a
  show pos L n + 3200 ≤ 1600000; unfold pos; omega

/-- Piece `n` of row 11 of the transposed argument, and piece `n` of the flat result, as memrefs of the tile. -/
abbrev inM (L : grid11.Coords) (n : ℕ) : Memref sig .scVector .hbm S1x3200 .f32 :=
  (xtW).slice (Rect.unit (s := S22x1600000) ![11, pos L n] S1x3200.size (in_inb L n)) (fun _ => rfl)
abbrev outM (L : grid11.Coords) (n : ℕ) : Memref sig .scVector .hbm S3200 .f32 :=
  (oW).slice (Rect.unit (s := S1600000) ![pos L n] S3200.size (out_inb L n)) (fun _ => rfl)

/-! The program's own slices are these pieces: by the closed forms of its offset functions. -/

omit [FloatOps F] in
theorem off2 {a b : ℕ} (h : a = b) : (![11, a] : Fin 2 → ℕ) = ![11, b] := by rw [h]
omit [FloatOps F] in
theorem off1' {a b : ℕ} (h : a = b) : (![a] : Fin 1 → ℕ) = ![b] := by rw [h]

omit [FloatOps F] in
theorem off_in0 (L : grid11.Coords) (h : valid L 0) : k11_off1 L 0#32 = ![11, pos L 0] :=
  (k11_off1_eq L 0).trans (off2 (by rw [pos_valid h]; simp))
omit [FloatOps F] in
theorem off_in1 (L : grid11.Coords) (h : valid L 1) : k11_off1 L 32#32 = ![11, pos L 1] :=
  (k11_off1_eq L 1).trans (off2 (by rw [pos_valid h]; simp))
omit [FloatOps F] in
theorem off_6 (L : grid11.Coords) (t : Fin k11_t1_loop.trips) (h : valid L (2 * t.val + 2)) : k11_off6 L t = ![11, pos L (2 * t.val + 2)] :=
  (k11_off6_eq L t).trans (off2 (by rw [pos_valid h]; omega))
omit [FloatOps F] in
theorem off_11 (L : grid11.Coords) (t : Fin k11_t1_loop.trips) (h : valid L (2 * t.val + 3)) : k11_off11 L t = ![11, pos L (2 * t.val + 3)] :=
  (k11_off11_eq L t).trans (off2 (by rw [pos_valid h]; omega))
omit [FloatOps F] in
theorem off_5 (L : grid11.Coords) (t : Fin k11_t1_loop.trips) (h : valid L (2 * t.val)) : k11_off5 L t = ![pos L (2 * t.val)] :=
  (k11_off5_eq L t).trans (off1' (by rw [pos_valid h]; omega))
omit [FloatOps F] in
theorem off_10 (L : grid11.Coords) (t : Fin k11_t1_loop.trips) (h : valid L (2 * t.val + 1)) : k11_off10 L t = ![pos L (2 * t.val + 1)] :=
  (k11_off10_eq L t).trans (off1' (by rw [pos_valid h]; omega))

/-- Holding a 1 × 3200 window of the transposed argument, or a 3200 window of the result, by exactly its elements
    says the same whichever way the window's offsets are spelt. -/
theorem in_congr {off off' : Fin 2 → ℕ} (h : off = off') (p : ∀ a, off a + S1x3200.size a ≤ S22x1600000.size a)
    (p' : ∀ a, off' a + S1x3200.size a ≤ S22x1600000.size a) (f : Buf (Elt F) ((xtW).view.loc (thr d L))) :
    (((xtW).slice (Rect.unit (s := S22x1600000) off S1x3200.size p) (fun _ => rfl)).view.loc (thr d L)
        ↦[((xtW).slice (Rect.unit (s := S22x1600000) off S1x3200.size p) (fun _ => rfl)).view.set]{fullShare} f : sProp 𝕄)
      = (((xtW).slice (Rect.unit (s := S22x1600000) off' S1x3200.size p') (fun _ => rfl)).view.loc (thr d L)
        ↦[((xtW).slice (Rect.unit (s := S22x1600000) off' S1x3200.size p') (fun _ => rfl)).view.set]{fullShare} f) := by
  subst h; rfl
theorem out_congr {off off' : Fin 1 → ℕ} (h : off = off') (p : ∀ a, off a + S3200.size a ≤ S1600000.size a)
    (p' : ∀ a, off' a + S3200.size a ≤ S1600000.size a) (f : Buf (Elt F) ((oW).view.loc (thr d L))) :
    (((oW).slice (Rect.unit (s := S1600000) off S3200.size p) (fun _ => rfl)).view.loc (thr d L)
        ↦[((oW).slice (Rect.unit (s := S1600000) off S3200.size p) (fun _ => rfl)).view.set]{fullShare} f : sProp 𝕄)
      = (((oW).slice (Rect.unit (s := S1600000) off' S3200.size p') (fun _ => rfl)).view.loc (thr d L)
        ↦[((oW).slice (Rect.unit (s := S1600000) off' S3200.size p') (fun _ => rfl)).view.set]{fullShare} f) := by
  subst h; rfl

/-! The printed conditions, as facts about the trip and the tile. -/

omit [FloatOps F] in
theorem trips1 : k11_t1_loop.trips = 8 := by decide
omit [FloatOps F] in
theorem cond1_iff : ∀ (t : Fin k11_t1_loop.trips), k11_cond1 t = 1#1 ↔ 1 ≤ t.val := by decide +kernel
omit [FloatOps F] in
theorem cond2_iff : ∀ (L : grid11.Coords) (t : Fin k11_t1_loop.trips), k11_cond2 L t = 1#1 := by decide +kernel
omit [FloatOps F] in
theorem cond3_iff : ∀ (L : grid11.Coords) (t : Fin k11_t1_loop.trips), k11_cond3 L t = 1#1 ↔ t.val ≤ 6 := by decide +kernel
omit [FloatOps F] in
theorem cond4_iff : ∀ (t : Fin k11_t1_loop.trips), k11_cond4 t = 1#1 ↔ 1 ≤ t.val := by decide +kernel
omit [FloatOps F] in
theorem cond5_iff : ∀ (L : grid11.Coords) (t : Fin k11_t1_loop.trips), k11_cond5 L t = 1#1 ↔ (t.val ≤ 6 ∨ big L) := by decide +kernel
omit [FloatOps F] in
theorem cond6_iff : ∀ (L : grid11.Coords) (t : Fin k11_t1_loop.trips), k11_cond6 L t = 1#1 ↔ (t.val ≤ 5 ∨ (t.val = 6 ∧ big L)) := by decide +kernel
omit [FloatOps F] in
theorem cond7_iff : ∀ (L : grid11.Coords), k11_cond7 L = 1#1 := by decide +kernel
omit [FloatOps F] in
theorem cond8_iff : ∀ (L : grid11.Coords), k11_cond8 L = 1#1 ↔ big L := by decide +kernel

variable (O : CellTallies nD τ sig (HIx 22)) (W : Waits sig (HIx 22))
variable (fx : Buf (Elt F) ((xtW).view.loc (thr d L)))

abbrev NN : ℕ := 102400

/-- The 3200-element window of a flat staging buffer that a piece is written out from. -/
abbrev stg (a : Memref sig .scVector .vmem S25600 .f32) : Memref sig .scVector .vmem S3200 .f32 :=
  a.slice (Rect.unit (s := S25600) ![0] S3200.size inb_S25600_S3200_0) (fun _ => rfl)

/-- Piece `n` of the argument row held by exactly its elements, at the argument's contents; piece `n` of the result
    held by exactly its elements, at some contents. -/
abbrev xtPiece (n : ℕ) : sProp 𝕄 := (inM L n).view.loc (thr d L) ↦[(inM L n).view.set]{fullShare} fx
abbrev oPiece (n : ℕ) : sProp 𝕄 := iprop(∃ f, (outM L n).view.loc (thr d L) ↦[(outM L n).view.set]{fullShare} f)

/-- The lane-copy loop of a slot: the staging row keeps its contents, the flat staging buffer holds some contents. -/
def laneInv0 (g4 : Buf (Elt F) ((a4).view.loc (thr d L))) (_ : ℕ) (_ : PUnit) : sProp 𝕄 :=
  iprop(((a4).view.loc (thr d L) ↦{fullShare} g4) ∗ (∃ g, (a6).view.loc (thr d L) ↦{fullShare} g))
def laneInv1 (g5 : Buf (Elt F) ((a5).view.loc (thr d L))) (_ : ℕ) (_ : PUnit) : sProp 𝕄 :=
  iprop(((a5).view.loc (thr d L) ↦{fullShare} g5) ∗ (∃ g, (a7).view.loc (thr d L) ↦{fullShare} g))

/-- A fetch slot before trip work on piece `n`: the piece's fetch in flight (it will hand back the staging row at some
    contents, and the piece), or, when there is no such piece, the slot idle. -/
def inSlot (a : Memref sig .scVector .vmem S8x3200 .f32) (sm : DmaSem sig) (n : ℕ) : sProp 𝕄 :=
  if valid L n then
    iprop(∃ g, Transfers.Flight countersEmb (thr d L) (SemLoc.dma sm) (default : HIx 22) NN
      iprop((a.view.loc (thr d L) ↦{fullShare} g) ∗ xtPiece d L fx n))
  else iprop((∃ g, a.view.loc (thr d L) ↦{fullShare} g) ∗ semVal (thr d L, SemLoc.dma sm) 0)

/-- A write-out slot before trip work on piece `m`: piece `m - 2`'s write-out in flight (it will hand back that piece
    of the result at some contents, and the staging window), the rest of the staging buffer beside it; or idle. -/
def outSlot (a : Memref sig .scVector .vmem S25600 .f32) (sm : DmaSem sig) (m : ℕ) : sProp 𝕄 :=
  if 2 ≤ m ∧ valid L (m - 2) then
    iprop(∃ g, Transfers.Flight countersEmb (thr d L) (SemLoc.dma sm) (default : HIx 22) NN
        iprop(oPiece d L (m - 2) ∗ ((stg a).view.loc (thr d L) ↦[(stg a).view.set]{fullShare} g))
      ∗ (a.view.loc (thr d L) ↦[Finset.univ \ (stg a).view.set]{fullShare} g))
  else iprop((∃ g, a.view.loc (thr d L) ↦{fullShare} g) ∗ semVal (thr d L, SemLoc.dma sm) 0)

/-- Piece `n` when it exists, nothing otherwise. -/
def xP (n : ℕ) : sProp 𝕄 := if valid L n then xtPiece d L fx n else iprop(emp)
def oP (n : ℕ) : sProp 𝕄 := if valid L n then oPiece d L n else iprop(emp)

/-- What the tile holds outside the slots before trip `t`: every piece of the argument row but those being fetched
    (`2t`, `2t + 1`), every piece of the result but those being written out (`2t - 2`, `2t - 1`). -/
def xSet (t : ℕ) : Finset ℕ := (Finset.range 18).filter fun n => n ≠ 2 * t ∧ n ≠ 2 * t + 1
def oSet (t : ℕ) : Finset ℕ := (Finset.range 18).filter fun n => n + 2 ≠ 2 * t ∧ n + 2 ≠ 2 * t + 1

def inv (t : ℕ) (_ : PUnit) : sProp 𝕄 :=
  iprop(Transfers.MayWaits (thr d L) (none : HIx 22) O
    ∗ (∃ W', ⌜∀ p ∈ W', p ∈ W ∨ p.2 = none⌝ ∗ owes (thr d L) O W')
    ∗ bigSep (xSet t) (xP d L fx) ∗ bigSep (oSet t) (oP d L)
    ∗ inSlot d L fx a4 cc11_scratch4.sem (2 * t) ∗ outSlot d L a6 cc11_scratch6.sem (2 * t)
    ∗ inSlot d L fx a5 cc11_scratch5.sem (2 * t + 1) ∗ outSlot d L a7 cc11_scratch7.sem (2 * t + 1))

omit [FloatOps F] in
theorem two_out {Φ : ℕ → sProp 𝕄} {s : Finset ℕ} {a b : ℕ} (ha : a ∈ s) (hb : b ∈ s) (hab : a ≠ b) :
    bigSep s Φ = iprop(Φ a ∗ Φ b ∗ bigSep ((s.erase a).erase b) Φ) := by
  rw [SparseCore.bigSep_erase' ha, SparseCore.bigSep_erase' (Finset.mem_erase.mpr ⟨fun e => hab e.symm, hb⟩)]

omit [FloatOps F] in
theorem range18_split : (Finset.range 18) = insert 0 (insert 1 (xSet 0)) := by decide

theorem xRange_split (v0 : valid L 0) (v1 : valid L 1) :
    bigSep (Finset.range 18) (xP d L fx) = iprop(xtPiece d L fx 0 ∗ xtPiece d L fx 1 ∗ bigSep (xSet 0) (xP d L fx)) := by
  rw [range18_split, SparseCore.bigSep_insert' (by decide), SparseCore.bigSep_insert' (by decide)]
  unfold xP; rw [if_pos v0, if_pos v1]
omit [FloatOps F] in
theorem oSet_zero : oSet 0 = Finset.range 18 := by decide

theorem inSlot_pos {a : Memref sig .scVector .vmem S8x3200 .f32} {sm : DmaSem sig} {n : ℕ} (v : valid L n) :
    inSlot d L fx a sm n = iprop(∃ g, Transfers.Flight countersEmb (thr d L) (SemLoc.dma sm) (default : HIx 22) NN
      iprop((a.view.loc (thr d L) ↦{fullShare} g) ∗ xtPiece d L fx n)) := by unfold inSlot; rw [if_pos v]
theorem inSlot_neg {a : Memref sig .scVector .vmem S8x3200 .f32} {sm : DmaSem sig} {n : ℕ} (v : ¬ valid L n) :
    inSlot d L fx a sm n = iprop((∃ g, a.view.loc (thr d L) ↦{fullShare} g) ∗ semVal (thr d L, SemLoc.dma sm) 0) := by
  unfold inSlot; rw [if_neg v]
theorem outSlot_pos {a : Memref sig .scVector .vmem S25600 .f32} {sm : DmaSem sig} {m : ℕ} (h : 2 ≤ m ∧ valid L (m - 2)) :
    outSlot (F := F) d L a sm m = iprop(∃ g, Transfers.Flight countersEmb (thr d L) (SemLoc.dma sm) (default : HIx 22) NN
        iprop(oPiece (F := F) d L (m - 2) ∗ ((stg a).view.loc (thr d L) ↦[(stg a).view.set]{fullShare} g))
      ∗ (a.view.loc (thr d L) ↦[Finset.univ \ (stg a).view.set]{fullShare} g)) := by unfold outSlot; rw [if_pos h]
theorem outSlot_neg {a : Memref sig .scVector .vmem S25600 .f32} {sm : DmaSem sig} {m : ℕ} (h : ¬ (2 ≤ m ∧ valid L (m - 2))) :
    outSlot (F := F) d L a sm m = iprop((∃ g, a.view.loc (thr d L) ↦{fullShare} g) ∗ semVal (thr d L, SemLoc.dma sm) 0) := by
  unfold outSlot; rw [if_neg h]

/-- A fetch in flight, its source window spelt by any offsets equal to piece `n`'s, fills the fetch slot for `n`. -/
theorem fl_in {off : Fin 2 → ℕ} {n : ℕ} (h : off = ![11, pos L n]) (p : ∀ a, off a + S1x3200.size a ≤ S22x1600000.size a) (v : valid L n)
    (a : Memref sig .scVector .vmem S8x3200 .f32) (sm : DmaSem sig) :
    (iprop(∃ g, Transfers.Flight countersEmb (thr d L) (SemLoc.dma sm) (default : HIx 22) NN
        iprop((a.view.loc (thr d L) ↦{fullShare} g)
          ∗ (((xtW).slice (Rect.unit (s := S22x1600000) off S1x3200.size p) (fun _ => rfl)).view.loc (thr d L)
              ↦[((xtW).slice (Rect.unit (s := S22x1600000) off S1x3200.size p) (fun _ => rfl)).view.set]{fullShare} fx))) : sProp 𝕄)
      ⊢ inSlot d L fx a sm n := by
  rw [inSlot_pos d L fx v]
  iintro ⟨%g, H⟩
  have hD : (iprop((a.view.loc (thr d L) ↦{fullShare} g)
          ∗ (((xtW).slice (Rect.unit (s := S22x1600000) off S1x3200.size p) (fun _ => rfl)).view.loc (thr d L)
              ↦[((xtW).slice (Rect.unit (s := S22x1600000) off S1x3200.size p) (fun _ => rfl)).view.set]{fullShare} fx)) : sProp 𝕄)
      ⊢ iprop((a.view.loc (thr d L) ↦{fullShare} g) ∗ xtPiece d L fx n) := by
    iintro ⟨H1, H2⟩
    isplitl [H1]; · iexact H1
    iapply (Entails.of_eq (in_congr d L h p (in_inb L n) fx)); iexact H2
  iexists g
  iapply (Transfers.Flight_mono countersEmb (thr d L) hD); iexact H

/-- A write-out in flight, its destination window spelt by any offsets equal to piece `n`'s, with the rest of the
    staging buffer, fills the write-out slot for `n + 2`. -/
theorem fl_out {off : Fin 1 → ℕ} {n : ℕ} (h : off = ![pos L n]) (p : ∀ a, off a + S3200.size a ≤ S1600000.size a) (v : valid L n)
    (a : Memref sig .scVector .vmem S25600 .f32) (sm : DmaSem sig) :
    (iprop(∃ (f : Buf (Elt F) ((oW).view.loc (thr d L))) (g : Buf (Elt F) (a.view.loc (thr d L))), Transfers.Flight countersEmb (thr d L) (SemLoc.dma sm) (default : HIx 22) NN
        iprop((((oW).slice (Rect.unit (s := S1600000) off S3200.size p) (fun _ => rfl)).view.loc (thr d L)
              ↦[((oW).slice (Rect.unit (s := S1600000) off S3200.size p) (fun _ => rfl)).view.set]{fullShare} f)
          ∗ ((stg a).view.loc (thr d L) ↦[(stg a).view.set]{fullShare} g))
        ∗ (a.view.loc (thr d L) ↦[Finset.univ \ (stg a).view.set]{fullShare} g)) : sProp 𝕄)
      ⊢ outSlot (F := F) d L a sm (n + 2) := by
  rw [outSlot_pos (F := F) d L (m := n + 2) ⟨by omega, by simpa using v⟩]
  iintro ⟨%f, %g, H, R⟩
  have hD : (iprop((((oW).slice (Rect.unit (s := S1600000) off S3200.size p) (fun _ => rfl)).view.loc (thr d L)
              ↦[((oW).slice (Rect.unit (s := S1600000) off S3200.size p) (fun _ => rfl)).view.set]{fullShare} f)
          ∗ ((stg a).view.loc (thr d L) ↦[(stg a).view.set]{fullShare} g)) : sProp 𝕄)
      ⊢ iprop(oPiece (F := F) d L (n + 2 - 2) ∗ ((stg a).view.loc (thr d L) ↦[(stg a).view.set]{fullShare} g)) := by
    rw [Nat.add_sub_cancel]
    iintro ⟨H1, H2⟩
    isplitl [H1]
    · iexists f; iapply (Entails.of_eq (out_congr d L h p (out_inb L n) f)); iexact H1
    · iexact H2
  iexists g
  isplitl [H]
  · iapply (Transfers.Flight_mono countersEmb (thr d L) hD); iexact H
  · iexact R

/-! The pieces outside the slots, from one trip to the next. -/
def xCore (k : ℕ) : Finset ℕ := (Finset.range 18).filter fun n => n ≠ 2 * k ∧ n ≠ 2 * k + 1 ∧ n ≠ 2 * k + 2 ∧ n ≠ 2 * k + 3
def oCore (k : ℕ) : Finset ℕ := (Finset.range 18).filter fun n => n + 2 ≠ 2 * k ∧ n + 2 ≠ 2 * k + 1 ∧ n ≠ 2 * k ∧ n ≠ 2 * k + 1

omit [FloatOps F] in
theorem xSet_out (Φ : ℕ → sProp 𝕄) (k : ℕ) (hk : k < 8) : bigSep (xSet k) Φ = iprop(Φ (2 * k + 2) ∗ Φ (2 * k + 3) ∗ bigSep (xCore k) Φ) := by
  have e : ((xSet k).erase (2 * k + 2)).erase (2 * k + 3) = xCore k := by
    ext n; simp only [xSet, xCore, Finset.mem_erase, Finset.mem_filter, Finset.mem_range]; omega
  rw [← e]; exact two_out (by simp only [xSet, Finset.mem_filter, Finset.mem_range]; omega) (by simp only [xSet, Finset.mem_filter, Finset.mem_range]; omega) (by omega)
omit [FloatOps F] in
theorem xSet_in (Φ : ℕ → sProp 𝕄) (k : ℕ) (hk : k < 8) : bigSep (xSet (k + 1)) Φ = iprop(Φ (2 * k) ∗ Φ (2 * k + 1) ∗ bigSep (xCore k) Φ) := by
  have e : ((xSet (k + 1)).erase (2 * k)).erase (2 * k + 1) = xCore k := by
    ext n; simp only [xSet, xCore, Finset.mem_erase, Finset.mem_filter, Finset.mem_range]; omega
  rw [← e]; exact two_out (by simp only [xSet, Finset.mem_filter, Finset.mem_range]; omega) (by simp only [xSet, Finset.mem_filter, Finset.mem_range]; omega) (by omega)
omit [FloatOps F] in
theorem oSet_out (Φ : ℕ → sProp 𝕄) (k : ℕ) (hk : k < 8) : bigSep (oSet k) Φ = iprop(Φ (2 * k) ∗ Φ (2 * k + 1) ∗ bigSep (oCore k) Φ) := by
  have e : ((oSet k).erase (2 * k)).erase (2 * k + 1) = oCore k := by
    ext n; simp only [oSet, oCore, Finset.mem_erase, Finset.mem_filter, Finset.mem_range]; omega
  rw [← e]; exact two_out (by simp only [oSet, Finset.mem_filter, Finset.mem_range]; omega) (by simp only [oSet, Finset.mem_filter, Finset.mem_range]; omega) (by omega)
omit [FloatOps F] in
theorem oSet_in (Φ : ℕ → sProp 𝕄) (k : ℕ) (hk : k < 8) (hk1 : 1 ≤ k) :
    bigSep (oSet (k + 1)) Φ = iprop(Φ (2 * k - 2) ∗ Φ (2 * k - 1) ∗ bigSep (oCore k) Φ) := by
  have e : ((oSet (k + 1)).erase (2 * k - 2)).erase (2 * k - 1) = oCore k := by
    ext n; simp only [oSet, oCore, Finset.mem_erase, Finset.mem_filter, Finset.mem_range]; omega
  rw [← e]; exact two_out (by simp only [oSet, Finset.mem_filter, Finset.mem_range]; omega) (by simp only [oSet, Finset.mem_filter, Finset.mem_range]; omega) (by omega)

theorem xP_pos {n : ℕ} (v : valid L n) : xP d L fx n = xtPiece d L fx n := if_pos v
theorem oP_pos {n : ℕ} (v : valid L n) : oP (F := F) d L n = oPiece (F := F) d L n := if_pos v
theorem xP_neg {n : ℕ} (v : ¬ valid L n) : xP d L fx n = iprop(emp) := if_neg v
theorem oP_neg {n : ℕ} (v : ¬ valid L n) : oP (F := F) d L n = iprop(emp) := if_neg v

/-- Piece `n` of the result at its final contents: row 11 of the transposed argument. -/
def oQ (n : ℕ) : sProp 𝕄 :=
  if valid L n then (outM L n).view.loc (thr d L) ↦[(outM L n).view.set]{fullShare} (Cert.Spec.row 11 fx) else iprop(emp)

/-- What a tile is handed for the call: its pieces of row 11 of the transposed argument, at the argument's contents, and
    its pieces of the result at some contents. What it hands back: the same pieces of the argument, and its pieces of
    the result holding the row. -/
def goRes : sProp 𝕄 := iprop(bigSep (Finset.range 18) (xP d L fx) ∗ bigSep (Finset.range 18) (oP (F := F) d L))
def tdRes : sProp 𝕄 := iprop(bigSep (Finset.range 18) (xP d L fx) ∗ bigSep (Finset.range 18) (oQ d L fx))

end Tile

end Cert.Proof.TileB11

end
-- ==== Proof.TileB12Defs.lean ====
/-
  One vector subcore's task of copy kernel 12 (counting from 0): definitions. The task moves its pieces of row 12 of the
  transposed argument (pieces of 3200 consecutive elements, piece number 2·s + c + 32·n for the subcore (c, s) and
  n = 0, 1, … while that number is below 500) into the flat result: each piece is fetched into a staging row, copied
  16 lanes at a time into a flat staging buffer, and written out, two pieces in flight at a time. Here: the pieces as
  memrefs, the program's own spellings of them, the printed conditions as facts about the trip, the two slots' states
  between trips, and what the tile holds outside the slots.
-/
import proofs.«206869_g37898791420194_cont_8to1_b_558_20_alg».proof.Defs
import Idealize.ShloMosaic.Lib.SparseCore.Launch
import Idealize.ShloMosaic.Lib.StableHlo.Run
import Idealize.ShloMosaic.Lib.Pipeline.Kit
import Idealize.ShloMosaic.Lib.Tactic
import proofs.«206869_g37898791420194_cont_8to1_b_558_20_alg».proof.Proof.Gen.Kernel
import proofs.«206869_g37898791420194_cont_8to1_b_558_20_alg».proof.Proof.Gen.Kernel.Skeleton
import proofs.«206869_g37898791420194_cont_8to1_b_558_20_alg».proof.Proof.Spec

noncomputable section

namespace Cert.Proof.TileB12

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

abbrev ΛP : Labels := Pipeline.Sig Λ₀ (Fin 0) fun p => (pcfgs (F := F) p).Adm
abbrev K : SparseCore.Cfg τ sig (ΛP (F := F)) 22 := sc (F := F)
abbrev 𝒱₀ : Variants := Variants.none

abbrev UH : Type := URounds (GSem nD τ sig) ℕ
abbrev UU : Type := UH × Counters

local notation "𝕄" => MT nD τ sig (HIx 22) (Elt F) ℕ UU ℕ

local notation "xtW" => (Memref.whole Cert.Kernel.main_v0_scv : Memref Cert.Kernel.sig Kind.scVector Space.hbm Cert.Kernel.S22x1600000 EltTy.f32)
local notation "oW" => (Memref.whole Cert.Kernel.main_v13_scv : Memref Cert.Kernel.sig Kind.scVector Space.hbm Cert.Kernel.S1600000 EltTy.f32)
local notation "a4" => (Memref.whole Cert.Kernel.cc12_scratch0 : Memref Cert.Kernel.sig Kind.scVector Space.vmem Cert.Kernel.S8x3200 EltTy.f32)
local notation "a5" => (Memref.whole Cert.Kernel.cc12_scratch1 : Memref Cert.Kernel.sig Kind.scVector Space.vmem Cert.Kernel.S8x3200 EltTy.f32)
local notation "a6" => (Memref.whole Cert.Kernel.cc12_scratch2 : Memref Cert.Kernel.sig Kind.scVector Space.vmem Cert.Kernel.S25600 EltTy.f32)
local notation "a7" => (Memref.whole Cert.Kernel.cc12_scratch3 : Memref Cert.Kernel.sig Kind.scVector Space.vmem Cert.Kernel.S25600 EltTy.f32)

variable [FloatOps F]

section Tile

variable (d : Dev nD) (L : grid12.Coords)

abbrev cV (L : grid12.Coords) : Fin τ.nSC := (L 0).castLE hcore12
abbrev jV (L : grid12.Coords) : Fin τ.nSub := (L 1).castLE hsub12
abbrev thr (d : Dev nD) (L : grid12.Coords) : Thread nD τ := V d (cV L) (jV L)

/-- The tile's number 2·s + c, and whether it has sixteen pieces (numbers below 20) or fifteen. -/
abbrev wid (L : grid12.Coords) : ℕ := 2 * (L 1).val + (L 0).val
abbrev big (L : grid12.Coords) : Prop := wid L < 20

omit [FloatOps F] in
theorem wid_lt (L : grid12.Coords) : wid L < 32 := by
  have h0 : (L 0).val < 2 := (L 0).isLt
  have h1 : (L 1).val < 16 := (L 1).isLt
  unfold wid; omega

/-- Piece `n` of the tile exists: `n < 15`, or `n = 15` on a tile with sixteen pieces. It is the piece number
    `wid + 32·n < 500` of the row. -/
def valid (L : grid12.Coords) (n : ℕ) : Prop := n < 15 ∨ (n = 15 ∧ big L)
instance (L : grid12.Coords) (n : ℕ) : Decidable (valid L n) := by unfold valid big; infer_instance

omit [FloatOps F] in
theorem valid_iff (L : grid12.Coords) (n : ℕ) : valid L n ↔ wid L + 32 * n < 500 := by
  have := wid_lt L; unfold valid big; omega

/-- Where piece `n` starts in the row (clamped to the last piece of the row, so that the rectangle is in bounds for
    every `n`; for a valid piece the clamp is idle). -/
abbrev pos (L : grid12.Coords) (n : ℕ) : ℕ := 3200 * min (wid L + 32 * n) 499

omit [FloatOps F] in
theorem pos_valid {L : grid12.Coords} {n : ℕ} (h : valid L n) : pos L n = 6400 * (L 1).val + 3200 * (L 0).val + 102400 * n := by
  have := (valid_iff L n).mp h; unfold pos wid at *; omega

omit [FloatOps F] in
theorem in_inb (L : grid12.Coords) (n : ℕ) : ∀ a, (![12, pos L n] : Fin 2 → ℕ) a + S1x3200.size a ≤ S22x1600000.size a := by
  intro a; fin_cases a
  · show 12 + 1 ≤ 22; omega
  · show pos L n + 3200 ≤ 1600000; unfold pos; omega
omit [FloatOps F] in
theorem out_inb (L : grid12.Coords) (n : ℕ) : ∀ a, (![pos L n] : Fin 1 → ℕ) a + S3200.size a ≤ S1600000.size a := by
  intro a; fin_cases a
  show pos L n + 3200 ≤ 1600000; unfold pos; omega

/-- Piece `n` of row 12 of the transposed argument, and piece `n` of the flat result, as memrefs of the tile. -/
abbrev inM (L : grid12.Coords) (n : ℕ) : Memref sig .scVector .hbm S1x3200 .f32 :=
  (xtW).slice (Rect.unit (s := S22x1600000) ![12, pos L n] S1x3200.size (in_inb L n)) (fun _ => rfl)
abbrev outM (L : grid12.Coords) (n : ℕ) : Memref sig .scVector .hbm S3200 .f32 :=
  (oW).slice (Rect.unit (s := S1600000) ![pos L n] S3200.size (out_inb L n)) (fun _ => rfl)

/-! The program's own slices are these pieces: by the closed forms of its offset functions. -/

omit [FloatOps F] in
theorem off2 {a b : ℕ} (h : a = b) : (![12, a] : Fin 2 → ℕ) = ![12, b] := by rw [h]
omit [FloatOps F] in
theorem off1' {a b : ℕ} (h : a = b) : (![a] : Fin 1 → ℕ) = ![b] := by rw [h]

omit [FloatOps F] in
theorem off_in0 (L : grid12.Coords) (h : valid L 0) : k12_off1 L 0#32 = ![12, pos L 0] :=
  (k12_off1_eq L 0).trans (off2 (by rw [pos_valid h]; simp))
omit [FloatOps F] in
theorem off_in1 (L : grid12.Coords) (h : valid L 1) : k12_off1 L 32#32 = ![12, pos L 1] :=
  (k12_off1_eq L 1).trans (off2 (by rw [pos_valid h]; simp))
omit [FloatOps F] in
theorem off_6 (L : grid12.Coords) (t : Fin k12_t1_loop.trips) (h : valid L (2 * t.val + 2)) : k12_off6 L t = ![12, pos L (2 * t.val + 2)] :=
  (k12_off6_eq L t).trans (off2 (by rw [pos_valid h]; omega))
omit [FloatOps F] in
theorem off_11 (L : grid12.Coords) (t : Fin k12_t1_loop.trips) (h : valid L (2 * t.val + 3)) : k12_off11 L t = ![12, pos L (2 * t.val + 3)] :=
  (k12_off11_eq L t).trans (off2 (by rw [pos_valid h]; omega))
omit [FloatOps F] in
theorem off_5 (L : grid12.Coords) (t : Fin k12_t1_loop.trips) (h : valid L (2 * t.val)) : k12_off5 L t = ![pos L (2 * t.val)] :=
  (k12_off5_eq L t).trans (off1' (by rw [pos_valid h]; omega))
omit [FloatOps F] in
theorem off_10 (L : grid12.Coords) (t : Fin k12_t1_loop.trips) (h : valid L (2 * t.val + 1)) : k12_off10 L t = ![pos L (2 * t.val + 1)] :=
  (k12_off10_eq L t).trans (off1' (by rw [pos_valid h]; omega))

/-- Holding a 1 × 3200 window of the transposed argument, or a 3200 window of the result, by exactly its elements
    says the same whichever way the window's offsets are spelt. -/
theorem in_congr {off off' : Fin 2 → ℕ} (h : off = off') (p : ∀ a, off a + S1x3200.size a ≤ S22x1600000.size a)
    (p' : ∀ a, off' a + S1x3200.size a ≤ S22x1600000.size a) (f : Buf (Elt F) ((xtW).view.loc (thr d L))) :
    (((xtW).slice (Rect.unit (s := S22x1600000) off S1x3200.size p) (fun _ => rfl)).view.loc (thr d L)
        ↦[((xtW).slice (Rect.unit (s := S22x1600000) off S1x3200.size p) (fun _ => rfl)).view.set]{fullShare} f : sProp 𝕄)
      = (((xtW).slice (Rect.unit (s := S22x1600000) off' S1x3200.size p') (fun _ => rfl)).view.loc (thr d L)
        ↦[((xtW).slice (Rect.unit (s := S22x1600000) off' S1x3200.size p') (fun _ => rfl)).view.set]{fullShare} f) := by
  subst h; rfl
theorem out_congr {off off' : Fin 1 → ℕ} (h : off = off') (p : ∀ a, off a + S3200.size a ≤ S1600000.size a)
    (p' : ∀ a, off' a + S3200.size a ≤ S1600000.size a) (f : Buf (Elt F) ((oW).view.loc (thr d L))) :
    (((oW).slice (Rect.unit (s := S1600000) off S3200.size p) (fun _ => rfl)).view.loc (thr d L)
        ↦[((oW).slice (Rect.unit (s := S1600000) off S3200.size p) (fun _ => rfl)).view.set]{fullShare} f : sProp 𝕄)
      = (((oW).slice (Rect.unit (s := S1600000) off' S3200.size p') (fun _ => rfl)).view.loc (thr d L)
        ↦[((oW).slice (Rect.unit (s := S1600000) off' S3200.size p') (fun _ => rfl)).view.set]{fullShare} f) := by
  subst h; rfl

/-! The printed conditions, as facts about the trip and the tile. -/

omit [FloatOps F] in
theorem trips1 : k12_t1_loop.trips = 8 := by decide
omit [FloatOps F] in
theorem cond1_iff : ∀ (t : Fin k12_t1_loop.trips), k12_cond1 t = 1#1 ↔ 1 ≤ t.val := by decide +kernel
omit [FloatOps F] in
theorem cond2_iff : ∀ (L : grid12.Coords) (t : Fin k12_t1_loop.trips), k12_cond2 L t = 1#1 := by decide +kernel
omit [FloatOps F] in
theorem cond3_iff : ∀ (L : grid12.Coords) (t : Fin k12_t1_loop.trips), k12_cond3 L t = 1#1 ↔ t.val ≤ 6 := by decide +kernel
omit [FloatOps F] in
theorem cond4_iff : ∀ (t : Fin k12_t1_loop.trips), k12_cond4 t = 1#1 ↔ 1 ≤ t.val := by decide +kernel
omit [FloatOps F] in
theorem cond5_iff : ∀ (L : grid12.Coords) (t : Fin k12_t1_loop.trips), k12_cond5 L t = 1#1 ↔ (t.val ≤ 6 ∨ big L) := by decide +kernel
omit [FloatOps F] in
theorem cond6_iff : ∀ (L : grid12.Coords) (t : Fin k12_t1_loop.trips), k12_cond6 L t = 1#1 ↔ (t.val ≤ 5 ∨ (t.val = 6 ∧ big L)) := by decide +kernel
omit [FloatOps F] in
theorem cond7_iff : ∀ (L : grid12.Coords), k12_cond7 L = 1#1 := by decide +kernel
omit [FloatOps F] in
theorem cond8_iff : ∀ (L : grid12.Coords), k12_cond8 L = 1#1 ↔ big L := by decide +kernel

variable (O : CellTallies nD τ sig (HIx 22)) (W : Waits sig (HIx 22))
variable (fx : Buf (Elt F) ((xtW).view.loc (thr d L)))

abbrev NN : ℕ := 102400

/-- The 3200-element window of a flat staging buffer that a piece is written out from. -/
abbrev stg (a : Memref sig .scVector .vmem S25600 .f32) : Memref sig .scVector .vmem S3200 .f32 :=
  a.slice (Rect.unit (s := S25600) ![0] S3200.size inb_S25600_S3200_0) (fun _ => rfl)

/-- Piece `n` of the argument row held by exactly its elements, at the argument's contents; piece `n` of the result
    held by exactly its elements, at some contents. -/
abbrev xtPiece (n : ℕ) : sProp 𝕄 := (inM L n).view.loc (thr d L) ↦[(inM L n).view.set]{fullShare} fx
abbrev oPiece (n : ℕ) : sProp 𝕄 := iprop(∃ f, (outM L n).view.loc (thr d L) ↦[(outM L n).view.set]{fullShare} f)

/-- The lane-copy loop of a slot: the staging row keeps its contents, the flat staging buffer holds some contents. -/
def laneInv0 (g4 : Buf (Elt F) ((a4).view.loc (thr d L))) (_ : ℕ) (_ : PUnit) : sProp 𝕄 :=
  iprop(((a4).view.loc (thr d L) ↦{fullShare} g4) ∗ (∃ g, (a6).view.loc (thr d L) ↦{fullShare} g))
def laneInv1 (g5 : Buf (Elt F) ((a5).view.loc (thr d L))) (_ : ℕ) (_ : PUnit) : sProp 𝕄 :=
  iprop(((a5).view.loc (thr d L) ↦{fullShare} g5) ∗ (∃ g, (a7).view.loc (thr d L) ↦{fullShare} g))

/-- A fetch slot before trip work on piece `n`: the piece's fetch in flight (it will hand back the staging row at some
    contents, and the piece), or, when there is no such piece, the slot idle. -/
def inSlot (a : Memref sig .scVector .vmem S8x3200 .f32) (sm : DmaSem sig) (n : ℕ) : sProp 𝕄 :=
  if valid L n then
    iprop(∃ g, Transfers.Flight countersEmb (thr d L) (SemLoc.dma sm) (default : HIx 22) NN
      iprop((a.view.loc (thr d L) ↦{fullShare} g) ∗ xtPiece d L fx n))
  else iprop((∃ g, a.view.loc (thr d L) ↦{fullShare} g) ∗ semVal (thr d L, SemLoc.dma sm) 0)

/-- A write-out slot before trip work on piece `m`: piece `m - 2`'s write-out in flight (it will hand back that piece
    of the result at some contents, and the staging window), the rest of the staging buffer beside it; or idle. -/
def outSlot (a : Memref sig .scVector .vmem S25600 .f32) (sm : DmaSem sig) (m : ℕ) : sProp 𝕄 :=
  if 2 ≤ m ∧ valid L (m - 2) then
    iprop(∃ g, Transfers.Flight countersEmb (thr d L) (SemLoc.dma sm) (default : HIx 22) NN
        iprop(oPiece d L (m - 2) ∗ ((stg a).view.loc (thr d L) ↦[(stg a).view.set]{fullShare} g))
      ∗ (a.view.loc (thr d L) ↦[Finset.univ \ (stg a).view.set]{fullShare} g))
  else iprop((∃ g, a.view.loc (thr d L) ↦{fullShare} g) ∗ semVal (thr d L, SemLoc.dma sm) 0)

/-- Piece `n` when it exists, nothing otherwise. -/
def xP (n : ℕ) : sProp 𝕄 := if valid L n then xtPiece d L fx n else iprop(emp)
def oP (n : ℕ) : sProp 𝕄 := if valid L n then oPiece d L n else iprop(emp)

/-- What the tile holds outside the slots before trip `t`: every piece of the argument row but those being fetched
    (`2t`, `2t + 1`), every piece of the result but those being written out (`2t - 2`, `2t - 1`). -/
def xSet (t : ℕ) : Finset ℕ := (Finset.range 18).filter fun n => n ≠ 2 * t ∧ n ≠ 2 * t + 1
def oSet (t : ℕ) : Finset ℕ := (Finset.range 18).filter fun n => n + 2 ≠ 2 * t ∧ n + 2 ≠ 2 * t + 1

def inv (t : ℕ) (_ : PUnit) : sProp 𝕄 :=
  iprop(Transfers.MayWaits (thr d L) (none : HIx 22) O
    ∗ (∃ W', ⌜∀ p ∈ W', p ∈ W ∨ p.2 = none⌝ ∗ owes (thr d L) O W')
    ∗ bigSep (xSet t) (xP d L fx) ∗ bigSep (oSet t) (oP d L)
    ∗ inSlot d L fx a4 cc12_scratch4.sem (2 * t) ∗ outSlot d L a6 cc12_scratch6.sem (2 * t)
    ∗ inSlot d L fx a5 cc12_scratch5.sem (2 * t + 1) ∗ outSlot d L a7 cc12_scratch7.sem (2 * t + 1))

omit [FloatOps F] in
theorem two_out {Φ : ℕ → sProp 𝕄} {s : Finset ℕ} {a b : ℕ} (ha : a ∈ s) (hb : b ∈ s) (hab : a ≠ b) :
    bigSep s Φ = iprop(Φ a ∗ Φ b ∗ bigSep ((s.erase a).erase b) Φ) := by
  rw [SparseCore.bigSep_erase' ha, SparseCore.bigSep_erase' (Finset.mem_erase.mpr ⟨fun e => hab e.symm, hb⟩)]

omit [FloatOps F] in
theorem range18_split : (Finset.range 18) = insert 0 (insert 1 (xSet 0)) := by decide

theorem xRange_split (v0 : valid L 0) (v1 : valid L 1) :
    bigSep (Finset.range 18) (xP d L fx) = iprop(xtPiece d L fx 0 ∗ xtPiece d L fx 1 ∗ bigSep (xSet 0) (xP d L fx)) := by
  rw [range18_split, SparseCore.bigSep_insert' (by decide), SparseCore.bigSep_insert' (by decide)]
  unfold xP; rw [if_pos v0, if_pos v1]
omit [FloatOps F] in
theorem oSet_zero : oSet 0 = Finset.range 18 := by decide

theorem inSlot_pos {a : Memref sig .scVector .vmem S8x3200 .f32} {sm : DmaSem sig} {n : ℕ} (v : valid L n) :
    inSlot d L fx a sm n = iprop(∃ g, Transfers.Flight countersEmb (thr d L) (SemLoc.dma sm) (default : HIx 22) NN
      iprop((a.view.loc (thr d L) ↦{fullShare} g) ∗ xtPiece d L fx n)) := by unfold inSlot; rw [if_pos v]
theorem inSlot_neg {a : Memref sig .scVector .vmem S8x3200 .f32} {sm : DmaSem sig} {n : ℕ} (v : ¬ valid L n) :
    inSlot d L fx a sm n = iprop((∃ g, a.view.loc (thr d L) ↦{fullShare} g) ∗ semVal (thr d L, SemLoc.dma sm) 0) := by
  unfold inSlot; rw [if_neg v]
theorem outSlot_pos {a : Memref sig .scVector .vmem S25600 .f32} {sm : DmaSem sig} {m : ℕ} (h : 2 ≤ m ∧ valid L (m - 2)) :
    outSlot (F := F) d L a sm m = iprop(∃ g, Transfers.Flight countersEmb (thr d L) (SemLoc.dma sm) (default : HIx 22) NN
        iprop(oPiece (F := F) d L (m - 2) ∗ ((stg a).view.loc (thr d L) ↦[(stg a).view.set]{fullShare} g))
      ∗ (a.view.loc (thr d L) ↦[Finset.univ \ (stg a).view.set]{fullShare} g)) := by unfold outSlot; rw [if_pos h]
theorem outSlot_neg {a : Memref sig .scVector .vmem S25600 .f32} {sm : DmaSem sig} {m : ℕ} (h : ¬ (2 ≤ m ∧ valid L (m - 2))) :
    outSlot (F := F) d L a sm m = iprop((∃ g, a.view.loc (thr d L) ↦{fullShare} g) ∗ semVal (thr d L, SemLoc.dma sm) 0) := by
  unfold outSlot; rw [if_neg h]

/-- A fetch in flight, its source window spelt by any offsets equal to piece `n`'s, fills the fetch slot for `n`. -/
theorem fl_in {off : Fin 2 → ℕ} {n : ℕ} (h : off = ![12, pos L n]) (p : ∀ a, off a + S1x3200.size a ≤ S22x1600000.size a) (v : valid L n)
    (a : Memref sig .scVector .vmem S8x3200 .f32) (sm : DmaSem sig) :
    (iprop(∃ g, Transfers.Flight countersEmb (thr d L) (SemLoc.dma sm) (default : HIx 22) NN
        iprop((a.view.loc (thr d L) ↦{fullShare} g)
          ∗ (((xtW).slice (Rect.unit (s := S22x1600000) off S1x3200.size p) (fun _ => rfl)).view.loc (thr d L)
              ↦[((xtW).slice (Rect.unit (s := S22x1600000) off S1x3200.size p) (fun _ => rfl)).view.set]{fullShare} fx))) : sProp 𝕄)
      ⊢ inSlot d L fx a sm n := by
  rw [inSlot_pos d L fx v]
  iintro ⟨%g, H⟩
  have hD : (iprop((a.view.loc (thr d L) ↦{fullShare} g)
          ∗ (((xtW).slice (Rect.unit (s := S22x1600000) off S1x3200.size p) (fun _ => rfl)).view.loc (thr d L)
              ↦[((xtW).slice (Rect.unit (s := S22x1600000) off S1x3200.size p) (fun _ => rfl)).view.set]{fullShare} fx)) : sProp 𝕄)
      ⊢ iprop((a.view.loc (thr d L) ↦{fullShare} g) ∗ xtPiece d L fx n) := by
    iintro ⟨H1, H2⟩
    isplitl [H1]; · iexact H1
    iapply (Entails.of_eq (in_congr d L h p (in_inb L n) fx)); iexact H2
  iexists g
  iapply (Transfers.Flight_mono countersEmb (thr d L) hD); iexact H

/-- A write-out in flight, its destination window spelt by any offsets equal to piece `n`'s, with the rest of the
    staging buffer, fills the write-out slot for `n + 2`. -/
theorem fl_out {off : Fin 1 → ℕ} {n : ℕ} (h : off = ![pos L n]) (p : ∀ a, off a + S3200.size a ≤ S1600000.size a) (v : valid L n)
    (a : Memref sig .scVector .vmem S25600 .f32) (sm : DmaSem sig) :
    (iprop(∃ (f : Buf (Elt F) ((oW).view.loc (thr d L))) (g : Buf (Elt F) (a.view.loc (thr d L))), Transfers.Flight countersEmb (thr d L) (SemLoc.dma sm) (default : HIx 22) NN
        iprop((((oW).slice (Rect.unit (s := S1600000) off S3200.size p) (fun _ => rfl)).view.loc (thr d L)
              ↦[((oW).slice (Rect.unit (s := S1600000) off S3200.size p) (fun _ => rfl)).view.set]{fullShare} f)
          ∗ ((stg a).view.loc (thr d L) ↦[(stg a).view.set]{fullShare} g))
        ∗ (a.view.loc (thr d L) ↦[Finset.univ \ (stg a).view.set]{fullShare} g)) : sProp 𝕄)
      ⊢ outSlot (F := F) d L a sm (n + 2) := by
  rw [outSlot_pos (F := F) d L (m := n + 2) ⟨by omega, by simpa using v⟩]
  iintro ⟨%f, %g, H, R⟩
  have hD : (iprop((((oW).slice (Rect.unit (s := S1600000) off S3200.size p) (fun _ => rfl)).view.loc (thr d L)
              ↦[((oW).slice (Rect.unit (s := S1600000) off S3200.size p) (fun _ => rfl)).view.set]{fullShare} f)
          ∗ ((stg a).view.loc (thr d L) ↦[(stg a).view.set]{fullShare} g)) : sProp 𝕄)
      ⊢ iprop(oPiece (F := F) d L (n + 2 - 2) ∗ ((stg a).view.loc (thr d L) ↦[(stg a).view.set]{fullShare} g)) := by
    rw [Nat.add_sub_cancel]
    iintro ⟨H1, H2⟩
    isplitl [H1]
    · iexists f; iapply (Entails.of_eq (out_congr d L h p (out_inb L n) f)); iexact H1
    · iexact H2
  iexists g
  isplitl [H]
  · iapply (Transfers.Flight_mono countersEmb (thr d L) hD); iexact H
  · iexact R

/-! The pieces outside the slots, from one trip to the next. -/
def xCore (k : ℕ) : Finset ℕ := (Finset.range 18).filter fun n => n ≠ 2 * k ∧ n ≠ 2 * k + 1 ∧ n ≠ 2 * k + 2 ∧ n ≠ 2 * k + 3
def oCore (k : ℕ) : Finset ℕ := (Finset.range 18).filter fun n => n + 2 ≠ 2 * k ∧ n + 2 ≠ 2 * k + 1 ∧ n ≠ 2 * k ∧ n ≠ 2 * k + 1

omit [FloatOps F] in
theorem xSet_out (Φ : ℕ → sProp 𝕄) (k : ℕ) (hk : k < 8) : bigSep (xSet k) Φ = iprop(Φ (2 * k + 2) ∗ Φ (2 * k + 3) ∗ bigSep (xCore k) Φ) := by
  have e : ((xSet k).erase (2 * k + 2)).erase (2 * k + 3) = xCore k := by
    ext n; simp only [xSet, xCore, Finset.mem_erase, Finset.mem_filter, Finset.mem_range]; omega
  rw [← e]; exact two_out (by simp only [xSet, Finset.mem_filter, Finset.mem_range]; omega) (by simp only [xSet, Finset.mem_filter, Finset.mem_range]; omega) (by omega)
omit [FloatOps F] in
theorem xSet_in (Φ : ℕ → sProp 𝕄) (k : ℕ) (hk : k < 8) : bigSep (xSet (k + 1)) Φ = iprop(Φ (2 * k) ∗ Φ (2 * k + 1) ∗ bigSep (xCore k) Φ) := by
  have e : ((xSet (k + 1)).erase (2 * k)).erase (2 * k + 1) = xCore k := by
    ext n; simp only [xSet, xCore, Finset.mem_erase, Finset.mem_filter, Finset.mem_range]; omega
  rw [← e]; exact two_out (by simp only [xSet, Finset.mem_filter, Finset.mem_range]; omega) (by simp only [xSet, Finset.mem_filter, Finset.mem_range]; omega) (by omega)
omit [FloatOps F] in
theorem oSet_out (Φ : ℕ → sProp 𝕄) (k : ℕ) (hk : k < 8) : bigSep (oSet k) Φ = iprop(Φ (2 * k) ∗ Φ (2 * k + 1) ∗ bigSep (oCore k) Φ) := by
  have e : ((oSet k).erase (2 * k)).erase (2 * k + 1) = oCore k := by
    ext n; simp only [oSet, oCore, Finset.mem_erase, Finset.mem_filter, Finset.mem_range]; omega
  rw [← e]; exact two_out (by simp only [oSet, Finset.mem_filter, Finset.mem_range]; omega) (by simp only [oSet, Finset.mem_filter, Finset.mem_range]; omega) (by omega)
omit [FloatOps F] in
theorem oSet_in (Φ : ℕ → sProp 𝕄) (k : ℕ) (hk : k < 8) (hk1 : 1 ≤ k) :
    bigSep (oSet (k + 1)) Φ = iprop(Φ (2 * k - 2) ∗ Φ (2 * k - 1) ∗ bigSep (oCore k) Φ) := by
  have e : ((oSet (k + 1)).erase (2 * k - 2)).erase (2 * k - 1) = oCore k := by
    ext n; simp only [oSet, oCore, Finset.mem_erase, Finset.mem_filter, Finset.mem_range]; omega
  rw [← e]; exact two_out (by simp only [oSet, Finset.mem_filter, Finset.mem_range]; omega) (by simp only [oSet, Finset.mem_filter, Finset.mem_range]; omega) (by omega)

theorem xP_pos {n : ℕ} (v : valid L n) : xP d L fx n = xtPiece d L fx n := if_pos v
theorem oP_pos {n : ℕ} (v : valid L n) : oP (F := F) d L n = oPiece (F := F) d L n := if_pos v
theorem xP_neg {n : ℕ} (v : ¬ valid L n) : xP d L fx n = iprop(emp) := if_neg v
theorem oP_neg {n : ℕ} (v : ¬ valid L n) : oP (F := F) d L n = iprop(emp) := if_neg v

/-- Piece `n` of the result at its final contents: row 12 of the transposed argument. -/
def oQ (n : ℕ) : sProp 𝕄 :=
  if valid L n then (outM L n).view.loc (thr d L) ↦[(outM L n).view.set]{fullShare} (Cert.Spec.row 12 fx) else iprop(emp)

/-- What a tile is handed for the call: its pieces of row 12 of the transposed argument, at the argument's contents, and
    its pieces of the result at some contents. What it hands back: the same pieces of the argument, and its pieces of
    the result holding the row. -/
def goRes : sProp 𝕄 := iprop(bigSep (Finset.range 18) (xP d L fx) ∗ bigSep (Finset.range 18) (oP (F := F) d L))
def tdRes : sProp 𝕄 := iprop(bigSep (Finset.range 18) (xP d L fx) ∗ bigSep (Finset.range 18) (oQ d L fx))

end Tile

end Cert.Proof.TileB12

end
-- ==== Proof.TileB13Defs.lean ====
/-
  One vector subcore's task of copy kernel 13 (counting from 0): definitions. The task moves its pieces of row 13 of the
  transposed argument (pieces of 3200 consecutive elements, piece number 2·s + c + 32·n for the subcore (c, s) and
  n = 0, 1, … while that number is below 500) into the flat result: each piece is fetched into a staging row, copied
  16 lanes at a time into a flat staging buffer, and written out, two pieces in flight at a time. Here: the pieces as
  memrefs, the program's own spellings of them, the printed conditions as facts about the trip, the two slots' states
  between trips, and what the tile holds outside the slots.
-/
import proofs.«206869_g37898791420194_cont_8to1_b_558_20_alg».proof.Defs
import Idealize.ShloMosaic.Lib.SparseCore.Launch
import Idealize.ShloMosaic.Lib.StableHlo.Run
import Idealize.ShloMosaic.Lib.Pipeline.Kit
import Idealize.ShloMosaic.Lib.Tactic
import proofs.«206869_g37898791420194_cont_8to1_b_558_20_alg».proof.Proof.Gen.Kernel
import proofs.«206869_g37898791420194_cont_8to1_b_558_20_alg».proof.Proof.Gen.Kernel.Skeleton
import proofs.«206869_g37898791420194_cont_8to1_b_558_20_alg».proof.Proof.Spec

noncomputable section

namespace Cert.Proof.TileB13

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

abbrev ΛP : Labels := Pipeline.Sig Λ₀ (Fin 0) fun p => (pcfgs (F := F) p).Adm
abbrev K : SparseCore.Cfg τ sig (ΛP (F := F)) 22 := sc (F := F)
abbrev 𝒱₀ : Variants := Variants.none

abbrev UH : Type := URounds (GSem nD τ sig) ℕ
abbrev UU : Type := UH × Counters

local notation "𝕄" => MT nD τ sig (HIx 22) (Elt F) ℕ UU ℕ

local notation "xtW" => (Memref.whole Cert.Kernel.main_v0_scv : Memref Cert.Kernel.sig Kind.scVector Space.hbm Cert.Kernel.S22x1600000 EltTy.f32)
local notation "oW" => (Memref.whole Cert.Kernel.main_v14_scv : Memref Cert.Kernel.sig Kind.scVector Space.hbm Cert.Kernel.S1600000 EltTy.f32)
local notation "a4" => (Memref.whole Cert.Kernel.cc13_scratch0 : Memref Cert.Kernel.sig Kind.scVector Space.vmem Cert.Kernel.S8x3200 EltTy.f32)
local notation "a5" => (Memref.whole Cert.Kernel.cc13_scratch1 : Memref Cert.Kernel.sig Kind.scVector Space.vmem Cert.Kernel.S8x3200 EltTy.f32)
local notation "a6" => (Memref.whole Cert.Kernel.cc13_scratch2 : Memref Cert.Kernel.sig Kind.scVector Space.vmem Cert.Kernel.S25600 EltTy.f32)
local notation "a7" => (Memref.whole Cert.Kernel.cc13_scratch3 : Memref Cert.Kernel.sig Kind.scVector Space.vmem Cert.Kernel.S25600 EltTy.f32)

variable [FloatOps F]

section Tile

variable (d : Dev nD) (L : grid13.Coords)

abbrev cV (L : grid13.Coords) : Fin τ.nSC := (L 0).castLE hcore13
abbrev jV (L : grid13.Coords) : Fin τ.nSub := (L 1).castLE hsub13
abbrev thr (d : Dev nD) (L : grid13.Coords) : Thread nD τ := V d (cV L) (jV L)

/-- The tile's number 2·s + c, and whether it has sixteen pieces (numbers below 20) or fifteen. -/
abbrev wid (L : grid13.Coords) : ℕ := 2 * (L 1).val + (L 0).val
abbrev big (L : grid13.Coords) : Prop := wid L < 20

omit [FloatOps F] in
theorem wid_lt (L : grid13.Coords) : wid L < 32 := by
  have h0 : (L 0).val < 2 := (L 0).isLt
  have h1 : (L 1).val < 16 := (L 1).isLt
  unfold wid; omega

/-- Piece `n` of the tile exists: `n < 15`, or `n = 15` on a tile with sixteen pieces. It is the piece number
    `wid + 32·n < 500` of the row. -/
def valid (L : grid13.Coords) (n : ℕ) : Prop := n < 15 ∨ (n = 15 ∧ big L)
instance (L : grid13.Coords) (n : ℕ) : Decidable (valid L n) := by unfold valid big; infer_instance

omit [FloatOps F] in
theorem valid_iff (L : grid13.Coords) (n : ℕ) : valid L n ↔ wid L + 32 * n < 500 := by
  have := wid_lt L; unfold valid big; omega

/-- Where piece `n` starts in the row (clamped to the last piece of the row, so that the rectangle is in bounds for
    every `n`; for a valid piece the clamp is idle). -/
abbrev pos (L : grid13.Coords) (n : ℕ) : ℕ := 3200 * min (wid L + 32 * n) 499

omit [FloatOps F] in
theorem pos_valid {L : grid13.Coords} {n : ℕ} (h : valid L n) : pos L n = 6400 * (L 1).val + 3200 * (L 0).val + 102400 * n := by
  have := (valid_iff L n).mp h; unfold pos wid at *; omega

omit [FloatOps F] in
theorem in_inb (L : grid13.Coords) (n : ℕ) : ∀ a, (![13, pos L n] : Fin 2 → ℕ) a + S1x3200.size a ≤ S22x1600000.size a := by
  intro a; fin_cases a
  · show 13 + 1 ≤ 22; omega
  · show pos L n + 3200 ≤ 1600000; unfold pos; omega
omit [FloatOps F] in
theorem out_inb (L : grid13.Coords) (n : ℕ) : ∀ a, (![pos L n] : Fin 1 → ℕ) a + S3200.size a ≤ S1600000.size a := by
  intro a; fin_cases a
  show pos L n + 3200 ≤ 1600000; unfold pos; omega

/-- Piece `n` of row 13 of the transposed argument, and piece `n` of the flat result, as memrefs of the tile. -/
abbrev inM (L : grid13.Coords) (n : ℕ) : Memref sig .scVector .hbm S1x3200 .f32 :=
  (xtW).slice (Rect.unit (s := S22x1600000) ![13, pos L n] S1x3200.size (in_inb L n)) (fun _ => rfl)
abbrev outM (L : grid13.Coords) (n : ℕ) : Memref sig .scVector .hbm S3200 .f32 :=
  (oW).slice (Rect.unit (s := S1600000) ![pos L n] S3200.size (out_inb L n)) (fun _ => rfl)

/-! The program's own slices are these pieces: by the closed forms of its offset functions. -/

omit [FloatOps F] in
theorem off2 {a b : ℕ} (h : a = b) : (![13, a] : Fin 2 → ℕ) = ![13, b] := by rw [h]
omit [FloatOps F] in
theorem off1' {a b : ℕ} (h : a = b) : (![a] : Fin 1 → ℕ) = ![b] := by rw [h]

omit [FloatOps F] in
theorem off_in0 (L : grid13.Coords) (h : valid L 0) : k13_off1 L 0#32 = ![13, pos L 0] :=
  (k13_off1_eq L 0).trans (off2 (by rw [pos_valid h]; simp))
omit [FloatOps F] in
theorem off_in1 (L : grid13.Coords) (h : valid L 1) : k13_off1 L 32#32 = ![13, pos L 1] :=
  (k13_off1_eq L 1).trans (off2 (by rw [pos_valid h]; simp))
omit [FloatOps F] in
theorem off_6 (L : grid13.Coords) (t : Fin k13_t1_loop.trips) (h : valid L (2 * t.val + 2)) : k13_off6 L t = ![13, pos L (2 * t.val + 2)] :=
  (k13_off6_eq L t).trans (off2 (by rw [pos_valid h]; omega))
omit [FloatOps F] in
theorem off_11 (L : grid13.Coords) (t : Fin k13_t1_loop.trips) (h : valid L (2 * t.val + 3)) : k13_off11 L t = ![13, pos L (2 * t.val + 3)] :=
  (k13_off11_eq L t).trans (off2 (by rw [pos_valid h]; omega))
omit [FloatOps F] in
theorem off_5 (L : grid13.Coords) (t : Fin k13_t1_loop.trips) (h : valid L (2 * t.val)) : k13_off5 L t = ![pos L (2 * t.val)] :=
  (k13_off5_eq L t).trans (off1' (by rw [pos_valid h]; omega))
omit [FloatOps F] in
theorem off_10 (L : grid13.Coords) (t : Fin k13_t1_loop.trips) (h : valid L (2 * t.val + 1)) : k13_off10 L t = ![pos L (2 * t.val + 1)] :=
  (k13_off10_eq L t).trans (off1' (by rw [pos_valid h]; omega))

/-- Holding a 1 × 3200 window of the transposed argument, or a 3200 window of the result, by exactly its elements
    says the same whichever way the window's offsets are spelt. -/
theorem in_congr {off off' : Fin 2 → ℕ} (h : off = off') (p : ∀ a, off a + S1x3200.size a ≤ S22x1600000.size a)
    (p' : ∀ a, off' a + S1x3200.size a ≤ S22x1600000.size a) (f : Buf (Elt F) ((xtW).view.loc (thr d L))) :
    (((xtW).slice (Rect.unit (s := S22x1600000) off S1x3200.size p) (fun _ => rfl)).view.loc (thr d L)
        ↦[((xtW).slice (Rect.unit (s := S22x1600000) off S1x3200.size p) (fun _ => rfl)).view.set]{fullShare} f : sProp 𝕄)
      = (((xtW).slice (Rect.unit (s := S22x1600000) off' S1x3200.size p') (fun _ => rfl)).view.loc (thr d L)
        ↦[((xtW).slice (Rect.unit (s := S22x1600000) off' S1x3200.size p') (fun _ => rfl)).view.set]{fullShare} f) := by
  subst h; rfl
theorem out_congr {off off' : Fin 1 → ℕ} (h : off = off') (p : ∀ a, off a + S3200.size a ≤ S1600000.size a)
    (p' : ∀ a, off' a + S3200.size a ≤ S1600000.size a) (f : Buf (Elt F) ((oW).view.loc (thr d L))) :
    (((oW).slice (Rect.unit (s := S1600000) off S3200.size p) (fun _ => rfl)).view.loc (thr d L)
        ↦[((oW).slice (Rect.unit (s := S1600000) off S3200.size p) (fun _ => rfl)).view.set]{fullShare} f : sProp 𝕄)
      = (((oW).slice (Rect.unit (s := S1600000) off' S3200.size p') (fun _ => rfl)).view.loc (thr d L)
        ↦[((oW).slice (Rect.unit (s := S1600000) off' S3200.size p') (fun _ => rfl)).view.set]{fullShare} f) := by
  subst h; rfl

/-! The printed conditions, as facts about the trip and the tile. -/

omit [FloatOps F] in
theorem trips1 : k13_t1_loop.trips = 8 := by decide
omit [FloatOps F] in
theorem cond1_iff : ∀ (t : Fin k13_t1_loop.trips), k13_cond1 t = 1#1 ↔ 1 ≤ t.val := by decide +kernel
omit [FloatOps F] in
theorem cond2_iff : ∀ (L : grid13.Coords) (t : Fin k13_t1_loop.trips), k13_cond2 L t = 1#1 := by decide +kernel
omit [FloatOps F] in
theorem cond3_iff : ∀ (L : grid13.Coords) (t : Fin k13_t1_loop.trips), k13_cond3 L t = 1#1 ↔ t.val ≤ 6 := by decide +kernel
omit [FloatOps F] in
theorem cond4_iff : ∀ (t : Fin k13_t1_loop.trips), k13_cond4 t = 1#1 ↔ 1 ≤ t.val := by decide +kernel
omit [FloatOps F] in
theorem cond5_iff : ∀ (L : grid13.Coords) (t : Fin k13_t1_loop.trips), k13_cond5 L t = 1#1 ↔ (t.val ≤ 6 ∨ big L) := by decide +kernel
omit [FloatOps F] in
theorem cond6_iff : ∀ (L : grid13.Coords) (t : Fin k13_t1_loop.trips), k13_cond6 L t = 1#1 ↔ (t.val ≤ 5 ∨ (t.val = 6 ∧ big L)) := by decide +kernel
omit [FloatOps F] in
theorem cond7_iff : ∀ (L : grid13.Coords), k13_cond7 L = 1#1 := by decide +kernel
omit [FloatOps F] in
theorem cond8_iff : ∀ (L : grid13.Coords), k13_cond8 L = 1#1 ↔ big L := by decide +kernel

variable (O : CellTallies nD τ sig (HIx 22)) (W : Waits sig (HIx 22))
variable (fx : Buf (Elt F) ((xtW).view.loc (thr d L)))

abbrev NN : ℕ := 102400

/-- The 3200-element window of a flat staging buffer that a piece is written out from. -/
abbrev stg (a : Memref sig .scVector .vmem S25600 .f32) : Memref sig .scVector .vmem S3200 .f32 :=
  a.slice (Rect.unit (s := S25600) ![0] S3200.size inb_S25600_S3200_0) (fun _ => rfl)

/-- Piece `n` of the argument row held by exactly its elements, at the argument's contents; piece `n` of the result
    held by exactly its elements, at some contents. -/
abbrev xtPiece (n : ℕ) : sProp 𝕄 := (inM L n).view.loc (thr d L) ↦[(inM L n).view.set]{fullShare} fx
abbrev oPiece (n : ℕ) : sProp 𝕄 := iprop(∃ f, (outM L n).view.loc (thr d L) ↦[(outM L n).view.set]{fullShare} f)

/-- The lane-copy loop of a slot: the staging row keeps its contents, the flat staging buffer holds some contents. -/
def laneInv0 (g4 : Buf (Elt F) ((a4).view.loc (thr d L))) (_ : ℕ) (_ : PUnit) : sProp 𝕄 :=
  iprop(((a4).view.loc (thr d L) ↦{fullShare} g4) ∗ (∃ g, (a6).view.loc (thr d L) ↦{fullShare} g))
def laneInv1 (g5 : Buf (Elt F) ((a5).view.loc (thr d L))) (_ : ℕ) (_ : PUnit) : sProp 𝕄 :=
  iprop(((a5).view.loc (thr d L) ↦{fullShare} g5) ∗ (∃ g, (a7).view.loc (thr d L) ↦{fullShare} g))

/-- A fetch slot before trip work on piece `n`: the piece's fetch in flight (it will hand back the staging row at some
    contents, and the piece), or, when there is no such piece, the slot idle. -/
def inSlot (a : Memref sig .scVector .vmem S8x3200 .f32) (sm : DmaSem sig) (n : ℕ) : sProp 𝕄 :=
  if valid L n then
    iprop(∃ g, Transfers.Flight countersEmb (thr d L) (SemLoc.dma sm) (default : HIx 22) NN
      iprop((a.view.loc (thr d L) ↦{fullShare} g) ∗ xtPiece d L fx n))
  else iprop((∃ g, a.view.loc (thr d L) ↦{fullShare} g) ∗ semVal (thr d L, SemLoc.dma sm) 0)

/-- A write-out slot before trip work on piece `m`: piece `m - 2`'s write-out in flight (it will hand back that piece
    of the result at some contents, and the staging window), the rest of the staging buffer beside it; or idle. -/
def outSlot (a : Memref sig .scVector .vmem S25600 .f32) (sm : DmaSem sig) (m : ℕ) : sProp 𝕄 :=
  if 2 ≤ m ∧ valid L (m - 2) then
    iprop(∃ g, Transfers.Flight countersEmb (thr d L) (SemLoc.dma sm) (default : HIx 22) NN
        iprop(oPiece d L (m - 2) ∗ ((stg a).view.loc (thr d L) ↦[(stg a).view.set]{fullShare} g))
      ∗ (a.view.loc (thr d L) ↦[Finset.univ \ (stg a).view.set]{fullShare} g))
  else iprop((∃ g, a.view.loc (thr d L) ↦{fullShare} g) ∗ semVal (thr d L, SemLoc.dma sm) 0)

/-- Piece `n` when it exists, nothing otherwise. -/
def xP (n : ℕ) : sProp 𝕄 := if valid L n then xtPiece d L fx n else iprop(emp)
def oP (n : ℕ) : sProp 𝕄 := if valid L n then oPiece d L n else iprop(emp)

/-- What the tile holds outside the slots before trip `t`: every piece of the argument row but those being fetched
    (`2t`, `2t + 1`), every piece of the result but those being written out (`2t - 2`, `2t - 1`). -/
def xSet (t : ℕ) : Finset ℕ := (Finset.range 18).filter fun n => n ≠ 2 * t ∧ n ≠ 2 * t + 1
def oSet (t : ℕ) : Finset ℕ := (Finset.range 18).filter fun n => n + 2 ≠ 2 * t ∧ n + 2 ≠ 2 * t + 1

def inv (t : ℕ) (_ : PUnit) : sProp 𝕄 :=
  iprop(Transfers.MayWaits (thr d L) (none : HIx 22) O
    ∗ (∃ W', ⌜∀ p ∈ W', p ∈ W ∨ p.2 = none⌝ ∗ owes (thr d L) O W')
    ∗ bigSep (xSet t) (xP d L fx) ∗ bigSep (oSet t) (oP d L)
    ∗ inSlot d L fx a4 cc13_scratch4.sem (2 * t) ∗ outSlot d L a6 cc13_scratch6.sem (2 * t)
    ∗ inSlot d L fx a5 cc13_scratch5.sem (2 * t + 1) ∗ outSlot d L a7 cc13_scratch7.sem (2 * t + 1))

omit [FloatOps F] in
theorem two_out {Φ : ℕ → sProp 𝕄} {s : Finset ℕ} {a b : ℕ} (ha : a ∈ s) (hb : b ∈ s) (hab : a ≠ b) :
    bigSep s Φ = iprop(Φ a ∗ Φ b ∗ bigSep ((s.erase a).erase b) Φ) := by
  rw [SparseCore.bigSep_erase' ha, SparseCore.bigSep_erase' (Finset.mem_erase.mpr ⟨fun e => hab e.symm, hb⟩)]

omit [FloatOps F] in
theorem range18_split : (Finset.range 18) = insert 0 (insert 1 (xSet 0)) := by decide

theorem xRange_split (v0 : valid L 0) (v1 : valid L 1) :
    bigSep (Finset.range 18) (xP d L fx) = iprop(xtPiece d L fx 0 ∗ xtPiece d L fx 1 ∗ bigSep (xSet 0) (xP d L fx)) := by
  rw [range18_split, SparseCore.bigSep_insert' (by decide), SparseCore.bigSep_insert' (by decide)]
  unfold xP; rw [if_pos v0, if_pos v1]
omit [FloatOps F] in
theorem oSet_zero : oSet 0 = Finset.range 18 := by decide

theorem inSlot_pos {a : Memref sig .scVector .vmem S8x3200 .f32} {sm : DmaSem sig} {n : ℕ} (v : valid L n) :
    inSlot d L fx a sm n = iprop(∃ g, Transfers.Flight countersEmb (thr d L) (SemLoc.dma sm) (default : HIx 22) NN
      iprop((a.view.loc (thr d L) ↦{fullShare} g) ∗ xtPiece d L fx n)) := by unfold inSlot; rw [if_pos v]
theorem inSlot_neg {a : Memref sig .scVector .vmem S8x3200 .f32} {sm : DmaSem sig} {n : ℕ} (v : ¬ valid L n) :
    inSlot d L fx a sm n = iprop((∃ g, a.view.loc (thr d L) ↦{fullShare} g) ∗ semVal (thr d L, SemLoc.dma sm) 0) := by
  unfold inSlot; rw [if_neg v]
theorem outSlot_pos {a : Memref sig .scVector .vmem S25600 .f32} {sm : DmaSem sig} {m : ℕ} (h : 2 ≤ m ∧ valid L (m - 2)) :
    outSlot (F := F) d L a sm m = iprop(∃ g, Transfers.Flight countersEmb (thr d L) (SemLoc.dma sm) (default : HIx 22) NN
        iprop(oPiece (F := F) d L (m - 2) ∗ ((stg a).view.loc (thr d L) ↦[(stg a).view.set]{fullShare} g))
      ∗ (a.view.loc (thr d L) ↦[Finset.univ \ (stg a).view.set]{fullShare} g)) := by unfold outSlot; rw [if_pos h]
theorem outSlot_neg {a : Memref sig .scVector .vmem S25600 .f32} {sm : DmaSem sig} {m : ℕ} (h : ¬ (2 ≤ m ∧ valid L (m - 2))) :
    outSlot (F := F) d L a sm m = iprop((∃ g, a.view.loc (thr d L) ↦{fullShare} g) ∗ semVal (thr d L, SemLoc.dma sm) 0) := by
  unfold outSlot; rw [if_neg h]

/-- A fetch in flight, its source window spelt by any offsets equal to piece `n`'s, fills the fetch slot for `n`. -/
theorem fl_in {off : Fin 2 → ℕ} {n : ℕ} (h : off = ![13, pos L n]) (p : ∀ a, off a + S1x3200.size a ≤ S22x1600000.size a) (v : valid L n)
    (a : Memref sig .scVector .vmem S8x3200 .f32) (sm : DmaSem sig) :
    (iprop(∃ g, Transfers.Flight countersEmb (thr d L) (SemLoc.dma sm) (default : HIx 22) NN
        iprop((a.view.loc (thr d L) ↦{fullShare} g)
          ∗ (((xtW).slice (Rect.unit (s := S22x1600000) off S1x3200.size p) (fun _ => rfl)).view.loc (thr d L)
              ↦[((xtW).slice (Rect.unit (s := S22x1600000) off S1x3200.size p) (fun _ => rfl)).view.set]{fullShare} fx))) : sProp 𝕄)
      ⊢ inSlot d L fx a sm n := by
  rw [inSlot_pos d L fx v]
  iintro ⟨%g, H⟩
  have hD : (iprop((a.view.loc (thr d L) ↦{fullShare} g)
          ∗ (((xtW).slice (Rect.unit (s := S22x1600000) off S1x3200.size p) (fun _ => rfl)).view.loc (thr d L)
              ↦[((xtW).slice (Rect.unit (s := S22x1600000) off S1x3200.size p) (fun _ => rfl)).view.set]{fullShare} fx)) : sProp 𝕄)
      ⊢ iprop((a.view.loc (thr d L) ↦{fullShare} g) ∗ xtPiece d L fx n) := by
    iintro ⟨H1, H2⟩
    isplitl [H1]; · iexact H1
    iapply (Entails.of_eq (in_congr d L h p (in_inb L n) fx)); iexact H2
  iexists g
  iapply (Transfers.Flight_mono countersEmb (thr d L) hD); iexact H

/-- A write-out in flight, its destination window spelt by any offsets equal to piece `n`'s, with the rest of the
    staging buffer, fills the write-out slot for `n + 2`. -/
theorem fl_out {off : Fin 1 → ℕ} {n : ℕ} (h : off = ![pos L n]) (p : ∀ a, off a + S3200.size a ≤ S1600000.size a) (v : valid L n)
    (a : Memref sig .scVector .vmem S25600 .f32) (sm : DmaSem sig) :
    (iprop(∃ (f : Buf (Elt F) ((oW).view.loc (thr d L))) (g : Buf (Elt F) (a.view.loc (thr d L))), Transfers.Flight countersEmb (thr d L) (SemLoc.dma sm) (default : HIx 22) NN
        iprop((((oW).slice (Rect.unit (s := S1600000) off S3200.size p) (fun _ => rfl)).view.loc (thr d L)
              ↦[((oW).slice (Rect.unit (s := S1600000) off S3200.size p) (fun _ => rfl)).view.set]{fullShare} f)
          ∗ ((stg a).view.loc (thr d L) ↦[(stg a).view.set]{fullShare} g))
        ∗ (a.view.loc (thr d L) ↦[Finset.univ \ (stg a).view.set]{fullShare} g)) : sProp 𝕄)
      ⊢ outSlot (F := F) d L a sm (n + 2) := by
  rw [outSlot_pos (F := F) d L (m := n + 2) ⟨by omega, by simpa using v⟩]
  iintro ⟨%f, %g, H, R⟩
  have hD : (iprop((((oW).slice (Rect.unit (s := S1600000) off S3200.size p) (fun _ => rfl)).view.loc (thr d L)
              ↦[((oW).slice (Rect.unit (s := S1600000) off S3200.size p) (fun _ => rfl)).view.set]{fullShare} f)
          ∗ ((stg a).view.loc (thr d L) ↦[(stg a).view.set]{fullShare} g)) : sProp 𝕄)
      ⊢ iprop(oPiece (F := F) d L (n + 2 - 2) ∗ ((stg a).view.loc (thr d L) ↦[(stg a).view.set]{fullShare} g)) := by
    rw [Nat.add_sub_cancel]
    iintro ⟨H1, H2⟩
    isplitl [H1]
    · iexists f; iapply (Entails.of_eq (out_congr d L h p (out_inb L n) f)); iexact H1
    · iexact H2
  iexists g
  isplitl [H]
  · iapply (Transfers.Flight_mono countersEmb (thr d L) hD); iexact H
  · iexact R

/-! The pieces outside the slots, from one trip to the next. -/
def xCore (k : ℕ) : Finset ℕ := (Finset.range 18).filter fun n => n ≠ 2 * k ∧ n ≠ 2 * k + 1 ∧ n ≠ 2 * k + 2 ∧ n ≠ 2 * k + 3
def oCore (k : ℕ) : Finset ℕ := (Finset.range 18).filter fun n => n + 2 ≠ 2 * k ∧ n + 2 ≠ 2 * k + 1 ∧ n ≠ 2 * k ∧ n ≠ 2 * k + 1

omit [FloatOps F] in
theorem xSet_out (Φ : ℕ → sProp 𝕄) (k : ℕ) (hk : k < 8) : bigSep (xSet k) Φ = iprop(Φ (2 * k + 2) ∗ Φ (2 * k + 3) ∗ bigSep (xCore k) Φ) := by
  have e : ((xSet k).erase (2 * k + 2)).erase (2 * k + 3) = xCore k := by
    ext n; simp only [xSet, xCore, Finset.mem_erase, Finset.mem_filter, Finset.mem_range]; omega
  rw [← e]; exact two_out (by simp only [xSet, Finset.mem_filter, Finset.mem_range]; omega) (by simp only [xSet, Finset.mem_filter, Finset.mem_range]; omega) (by omega)
omit [FloatOps F] in
theorem xSet_in (Φ : ℕ → sProp 𝕄) (k : ℕ) (hk : k < 8) : bigSep (xSet (k + 1)) Φ = iprop(Φ (2 * k) ∗ Φ (2 * k + 1) ∗ bigSep (xCore k) Φ) := by
  have e : ((xSet (k + 1)).erase (2 * k)).erase (2 * k + 1) = xCore k := by
    ext n; simp only [xSet, xCore, Finset.mem_erase, Finset.mem_filter, Finset.mem_range]; omega
  rw [← e]; exact two_out (by simp only [xSet, Finset.mem_filter, Finset.mem_range]; omega) (by simp only [xSet, Finset.mem_filter, Finset.mem_range]; omega) (by omega)
omit [FloatOps F] in
theorem oSet_out (Φ : ℕ → sProp 𝕄) (k : ℕ) (hk : k < 8) : bigSep (oSet k) Φ = iprop(Φ (2 * k) ∗ Φ (2 * k + 1) ∗ bigSep (oCore k) Φ) := by
  have e : ((oSet k).erase (2 * k)).erase (2 * k + 1) = oCore k := by
    ext n; simp only [oSet, oCore, Finset.mem_erase, Finset.mem_filter, Finset.mem_range]; omega
  rw [← e]; exact two_out (by simp only [oSet, Finset.mem_filter, Finset.mem_range]; omega) (by simp only [oSet, Finset.mem_filter, Finset.mem_range]; omega) (by omega)
omit [FloatOps F] in
theorem oSet_in (Φ : ℕ → sProp 𝕄) (k : ℕ) (hk : k < 8) (hk1 : 1 ≤ k) :
    bigSep (oSet (k + 1)) Φ = iprop(Φ (2 * k - 2) ∗ Φ (2 * k - 1) ∗ bigSep (oCore k) Φ) := by
  have e : ((oSet (k + 1)).erase (2 * k - 2)).erase (2 * k - 1) = oCore k := by
    ext n; simp only [oSet, oCore, Finset.mem_erase, Finset.mem_filter, Finset.mem_range]; omega
  rw [← e]; exact two_out (by simp only [oSet, Finset.mem_filter, Finset.mem_range]; omega) (by simp only [oSet, Finset.mem_filter, Finset.mem_range]; omega) (by omega)

theorem xP_pos {n : ℕ} (v : valid L n) : xP d L fx n = xtPiece d L fx n := if_pos v
theorem oP_pos {n : ℕ} (v : valid L n) : oP (F := F) d L n = oPiece (F := F) d L n := if_pos v
theorem xP_neg {n : ℕ} (v : ¬ valid L n) : xP d L fx n = iprop(emp) := if_neg v
theorem oP_neg {n : ℕ} (v : ¬ valid L n) : oP (F := F) d L n = iprop(emp) := if_neg v

/-- Piece `n` of the result at its final contents: row 13 of the transposed argument. -/
def oQ (n : ℕ) : sProp 𝕄 :=
  if valid L n then (outM L n).view.loc (thr d L) ↦[(outM L n).view.set]{fullShare} (Cert.Spec.row 13 fx) else iprop(emp)

/-- What a tile is handed for the call: its pieces of row 13 of the transposed argument, at the argument's contents, and
    its pieces of the result at some contents. What it hands back: the same pieces of the argument, and its pieces of
    the result holding the row. -/
def goRes : sProp 𝕄 := iprop(bigSep (Finset.range 18) (xP d L fx) ∗ bigSep (Finset.range 18) (oP (F := F) d L))
def tdRes : sProp 𝕄 := iprop(bigSep (Finset.range 18) (xP d L fx) ∗ bigSep (Finset.range 18) (oQ d L fx))

end Tile

end Cert.Proof.TileB13

end
-- ==== Proof.TileB14Defs.lean ====
/-
  One vector subcore's task of copy kernel 14 (counting from 0): definitions. The task moves its pieces of row 14 of the
  transposed argument (pieces of 3200 consecutive elements, piece number 2·s + c + 32·n for the subcore (c, s) and
  n = 0, 1, … while that number is below 500) into the flat result: each piece is fetched into a staging row, copied
  16 lanes at a time into a flat staging buffer, and written out, two pieces in flight at a time. Here: the pieces as
  memrefs, the program's own spellings of them, the printed conditions as facts about the trip, the two slots' states
  between trips, and what the tile holds outside the slots.
-/
import proofs.«206869_g37898791420194_cont_8to1_b_558_20_alg».proof.Defs
import Idealize.ShloMosaic.Lib.SparseCore.Launch
import Idealize.ShloMosaic.Lib.StableHlo.Run
import Idealize.ShloMosaic.Lib.Pipeline.Kit
import Idealize.ShloMosaic.Lib.Tactic
import proofs.«206869_g37898791420194_cont_8to1_b_558_20_alg».proof.Proof.Gen.Kernel
import proofs.«206869_g37898791420194_cont_8to1_b_558_20_alg».proof.Proof.Gen.Kernel.Skeleton
import proofs.«206869_g37898791420194_cont_8to1_b_558_20_alg».proof.Proof.Spec

noncomputable section

namespace Cert.Proof.TileB14

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

abbrev ΛP : Labels := Pipeline.Sig Λ₀ (Fin 0) fun p => (pcfgs (F := F) p).Adm
abbrev K : SparseCore.Cfg τ sig (ΛP (F := F)) 22 := sc (F := F)
abbrev 𝒱₀ : Variants := Variants.none

abbrev UH : Type := URounds (GSem nD τ sig) ℕ
abbrev UU : Type := UH × Counters

local notation "𝕄" => MT nD τ sig (HIx 22) (Elt F) ℕ UU ℕ

local notation "xtW" => (Memref.whole Cert.Kernel.main_v0_scv : Memref Cert.Kernel.sig Kind.scVector Space.hbm Cert.Kernel.S22x1600000 EltTy.f32)
local notation "oW" => (Memref.whole Cert.Kernel.main_v15_scv : Memref Cert.Kernel.sig Kind.scVector Space.hbm Cert.Kernel.S1600000 EltTy.f32)
local notation "a4" => (Memref.whole Cert.Kernel.cc14_scratch0 : Memref Cert.Kernel.sig Kind.scVector Space.vmem Cert.Kernel.S8x3200 EltTy.f32)
local notation "a5" => (Memref.whole Cert.Kernel.cc14_scratch1 : Memref Cert.Kernel.sig Kind.scVector Space.vmem Cert.Kernel.S8x3200 EltTy.f32)
local notation "a6" => (Memref.whole Cert.Kernel.cc14_scratch2 : Memref Cert.Kernel.sig Kind.scVector Space.vmem Cert.Kernel.S25600 EltTy.f32)
local notation "a7" => (Memref.whole Cert.Kernel.cc14_scratch3 : Memref Cert.Kernel.sig Kind.scVector Space.vmem Cert.Kernel.S25600 EltTy.f32)

variable [FloatOps F]

section Tile

variable (d : Dev nD) (L : grid14.Coords)

abbrev cV (L : grid14.Coords) : Fin τ.nSC := (L 0).castLE hcore14
abbrev jV (L : grid14.Coords) : Fin τ.nSub := (L 1).castLE hsub14
abbrev thr (d : Dev nD) (L : grid14.Coords) : Thread nD τ := V d (cV L) (jV L)

/-- The tile's number 2·s + c, and whether it has sixteen pieces (numbers below 20) or fifteen. -/
abbrev wid (L : grid14.Coords) : ℕ := 2 * (L 1).val + (L 0).val
abbrev big (L : grid14.Coords) : Prop := wid L < 20

omit [FloatOps F] in
theorem wid_lt (L : grid14.Coords) : wid L < 32 := by
  have h0 : (L 0).val < 2 := (L 0).isLt
  have h1 : (L 1).val < 16 := (L 1).isLt
  unfold wid; omega

/-- Piece `n` of the tile exists: `n < 15`, or `n = 15` on a tile with sixteen pieces. It is the piece number
    `wid + 32·n < 500` of the row. -/
def valid (L : grid14.Coords) (n : ℕ) : Prop := n < 15 ∨ (n = 15 ∧ big L)
instance (L : grid14.Coords) (n : ℕ) : Decidable (valid L n) := by unfold valid big; infer_instance

omit [FloatOps F] in
theorem valid_iff (L : grid14.Coords) (n : ℕ) : valid L n ↔ wid L + 32 * n < 500 := by
  have := wid_lt L; unfold valid big; omega

/-- Where piece `n` starts in the row (clamped to the last piece of the row, so that the rectangle is in bounds for
    every `n`; for a valid piece the clamp is idle). -/
abbrev pos (L : grid14.Coords) (n : ℕ) : ℕ := 3200 * min (wid L + 32 * n) 499

omit [FloatOps F] in
theorem pos_valid {L : grid14.Coords} {n : ℕ} (h : valid L n) : pos L n = 6400 * (L 1).val + 3200 * (L 0).val + 102400 * n := by
  have := (valid_iff L n).mp h; unfold pos wid at *; omega

omit [FloatOps F] in
theorem in_inb (L : grid14.Coords) (n : ℕ) : ∀ a, (![14, pos L n] : Fin 2 → ℕ) a + S1x3200.size a ≤ S22x1600000.size a := by
  intro a; fin_cases a
  · show 14 + 1 ≤ 22; omega
  · show pos L n + 3200 ≤ 1600000; unfold pos; omega
omit [FloatOps F] in
theorem out_inb (L : grid14.Coords) (n : ℕ) : ∀ a, (![pos L n] : Fin 1 → ℕ) a + S3200.size a ≤ S1600000.size a := by
  intro a; fin_cases a
  show pos L n + 3200 ≤ 1600000; unfold pos; omega

/-- Piece `n` of row 14 of the transposed argument, and piece `n` of the flat result, as memrefs of the tile. -/
abbrev inM (L : grid14.Coords) (n : ℕ) : Memref sig .scVector .hbm S1x3200 .f32 :=
  (xtW).slice (Rect.unit (s := S22x1600000) ![14, pos L n] S1x3200.size (in_inb L n)) (fun _ => rfl)
abbrev outM (L : grid14.Coords) (n : ℕ) : Memref sig .scVector .hbm S3200 .f32 :=
  (oW).slice (Rect.unit (s := S1600000) ![pos L n] S3200.size (out_inb L n)) (fun _ => rfl)

/-! The program's own slices are these pieces: by the closed forms of its offset functions. -/

omit [FloatOps F] in
theorem off2 {a b : ℕ} (h : a = b) : (![14, a] : Fin 2 → ℕ) = ![14, b] := by rw [h]
omit [FloatOps F] in
theorem off1' {a b : ℕ} (h : a = b) : (![a] : Fin 1 → ℕ) = ![b] := by rw [h]

omit [FloatOps F] in
theorem off_in0 (L : grid14.Coords) (h : valid L 0) : k14_off1 L 0#32 = ![14, pos L 0] :=
  (k14_off1_eq L 0).trans (off2 (by rw [pos_valid h]; simp))
omit [FloatOps F] in
theorem off_in1 (L : grid14.Coords) (h : valid L 1) : k14_off1 L 32#32 = ![14, pos L 1] :=
  (k14_off1_eq L 1).trans (off2 (by rw [pos_valid h]; simp))
omit [FloatOps F] in
theorem off_6 (L : grid14.Coords) (t : Fin k14_t1_loop.trips) (h : valid L (2 * t.val + 2)) : k14_off6 L t = ![14, pos L (2 * t.val + 2)] :=
  (k14_off6_eq L t).trans (off2 (by rw [pos_valid h]; omega))
omit [FloatOps F] in
theorem off_11 (L : grid14.Coords) (t : Fin k14_t1_loop.trips) (h : valid L (2 * t.val + 3)) : k14_off11 L t = ![14, pos L (2 * t.val + 3)] :=
  (k14_off11_eq L t).trans (off2 (by rw [pos_valid h]; omega))
omit [FloatOps F] in
theorem off_5 (L : grid14.Coords) (t : Fin k14_t1_loop.trips) (h : valid L (2 * t.val)) : k14_off5 L t = ![pos L (2 * t.val)] :=
  (k14_off5_eq L t).trans (off1' (by rw [pos_valid h]; omega))
omit [FloatOps F] in
theorem off_10 (L : grid14.Coords) (t : Fin k14_t1_loop.trips) (h : valid L (2 * t.val + 1)) : k14_off10 L t = ![pos L (2 * t.val + 1)] :=
  (k14_off10_eq L t).trans (off1' (by rw [pos_valid h]; omega))

/-- Holding a 1 × 3200 window of the transposed argument, or a 3200 window of the result, by exactly its elements
    says the same whichever way the window's offsets are spelt. -/
theorem in_congr {off off' : Fin 2 → ℕ} (h : off = off') (p : ∀ a, off a + S1x3200.size a ≤ S22x1600000.size a)
    (p' : ∀ a, off' a + S1x3200.size a ≤ S22x1600000.size a) (f : Buf (Elt F) ((xtW).view.loc (thr d L))) :
    (((xtW).slice (Rect.unit (s := S22x1600000) off S1x3200.size p) (fun _ => rfl)).view.loc (thr d L)
        ↦[((xtW).slice (Rect.unit (s := S22x1600000) off S1x3200.size p) (fun _ => rfl)).view.set]{fullShare} f : sProp 𝕄)
      = (((xtW).slice (Rect.unit (s := S22x1600000) off' S1x3200.size p') (fun _ => rfl)).view.loc (thr d L)
        ↦[((xtW).slice (Rect.unit (s := S22x1600000) off' S1x3200.size p') (fun _ => rfl)).view.set]{fullShare} f) := by
  subst h; rfl
theorem out_congr {off off' : Fin 1 → ℕ} (h : off = off') (p : ∀ a, off a + S3200.size a ≤ S1600000.size a)
    (p' : ∀ a, off' a + S3200.size a ≤ S1600000.size a) (f : Buf (Elt F) ((oW).view.loc (thr d L))) :
    (((oW).slice (Rect.unit (s := S1600000) off S3200.size p) (fun _ => rfl)).view.loc (thr d L)
        ↦[((oW).slice (Rect.unit (s := S1600000) off S3200.size p) (fun _ => rfl)).view.set]{fullShare} f : sProp 𝕄)
      = (((oW).slice (Rect.unit (s := S1600000) off' S3200.size p') (fun _ => rfl)).view.loc (thr d L)
        ↦[((oW).slice (Rect.unit (s := S1600000) off' S3200.size p') (fun _ => rfl)).view.set]{fullShare} f) := by
  subst h; rfl

/-! The printed conditions, as facts about the trip and the tile. -/

omit [FloatOps F] in
theorem trips1 : k14_t1_loop.trips = 8 := by decide
omit [FloatOps F] in
theorem cond1_iff : ∀ (t : Fin k14_t1_loop.trips), k14_cond1 t = 1#1 ↔ 1 ≤ t.val := by decide +kernel
omit [FloatOps F] in
theorem cond2_iff : ∀ (L : grid14.Coords) (t : Fin k14_t1_loop.trips), k14_cond2 L t = 1#1 := by decide +kernel
omit [FloatOps F] in
theorem cond3_iff : ∀ (L : grid14.Coords) (t : Fin k14_t1_loop.trips), k14_cond3 L t = 1#1 ↔ t.val ≤ 6 := by decide +kernel
omit [FloatOps F] in
theorem cond4_iff : ∀ (t : Fin k14_t1_loop.trips), k14_cond4 t = 1#1 ↔ 1 ≤ t.val := by decide +kernel
omit [FloatOps F] in
theorem cond5_iff : ∀ (L : grid14.Coords) (t : Fin k14_t1_loop.trips), k14_cond5 L t = 1#1 ↔ (t.val ≤ 6 ∨ big L) := by decide +kernel
omit [FloatOps F] in
theorem cond6_iff : ∀ (L : grid14.Coords) (t : Fin k14_t1_loop.trips), k14_cond6 L t = 1#1 ↔ (t.val ≤ 5 ∨ (t.val = 6 ∧ big L)) := by decide +kernel
omit [FloatOps F] in
theorem cond7_iff : ∀ (L : grid14.Coords), k14_cond7 L = 1#1 := by decide +kernel
omit [FloatOps F] in
theorem cond8_iff : ∀ (L : grid14.Coords), k14_cond8 L = 1#1 ↔ big L := by decide +kernel

variable (O : CellTallies nD τ sig (HIx 22)) (W : Waits sig (HIx 22))
variable (fx : Buf (Elt F) ((xtW).view.loc (thr d L)))

abbrev NN : ℕ := 102400

/-- The 3200-element window of a flat staging buffer that a piece is written out from. -/
abbrev stg (a : Memref sig .scVector .vmem S25600 .f32) : Memref sig .scVector .vmem S3200 .f32 :=
  a.slice (Rect.unit (s := S25600) ![0] S3200.size inb_S25600_S3200_0) (fun _ => rfl)

/-- Piece `n` of the argument row held by exactly its elements, at the argument's contents; piece `n` of the result
    held by exactly its elements, at some contents. -/
abbrev xtPiece (n : ℕ) : sProp 𝕄 := (inM L n).view.loc (thr d L) ↦[(inM L n).view.set]{fullShare} fx
abbrev oPiece (n : ℕ) : sProp 𝕄 := iprop(∃ f, (outM L n).view.loc (thr d L) ↦[(outM L n).view.set]{fullShare} f)

/-- The lane-copy loop of a slot: the staging row keeps its contents, the flat staging buffer holds some contents. -/
def laneInv0 (g4 : Buf (Elt F) ((a4).view.loc (thr d L))) (_ : ℕ) (_ : PUnit) : sProp 𝕄 :=
  iprop(((a4).view.loc (thr d L) ↦{fullShare} g4) ∗ (∃ g, (a6).view.loc (thr d L) ↦{fullShare} g))
def laneInv1 (g5 : Buf (Elt F) ((a5).view.loc (thr d L))) (_ : ℕ) (_ : PUnit) : sProp 𝕄 :=
  iprop(((a5).view.loc (thr d L) ↦{fullShare} g5) ∗ (∃ g, (a7).view.loc (thr d L) ↦{fullShare} g))

/-- A fetch slot before trip work on piece `n`: the piece's fetch in flight (it will hand back the staging row at some
    contents, and the piece), or, when there is no such piece, the slot idle. -/
def inSlot (a : Memref sig .scVector .vmem S8x3200 .f32) (sm : DmaSem sig) (n : ℕ) : sProp 𝕄 :=
  if valid L n then
    iprop(∃ g, Transfers.Flight countersEmb (thr d L) (SemLoc.dma sm) (default : HIx 22) NN
      iprop((a.view.loc (thr d L) ↦{fullShare} g) ∗ xtPiece d L fx n))
  else iprop((∃ g, a.view.loc (thr d L) ↦{fullShare} g) ∗ semVal (thr d L, SemLoc.dma sm) 0)

/-- A write-out slot before trip work on piece `m`: piece `m - 2`'s write-out in flight (it will hand back that piece
    of the result at some contents, and the staging window), the rest of the staging buffer beside it; or idle. -/
def outSlot (a : Memref sig .scVector .vmem S25600 .f32) (sm : DmaSem sig) (m : ℕ) : sProp 𝕄 :=
  if 2 ≤ m ∧ valid L (m - 2) then
    iprop(∃ g, Transfers.Flight countersEmb (thr d L) (SemLoc.dma sm) (default : HIx 22) NN
        iprop(oPiece d L (m - 2) ∗ ((stg a).view.loc (thr d L) ↦[(stg a).view.set]{fullShare} g))
      ∗ (a.view.loc (thr d L) ↦[Finset.univ \ (stg a).view.set]{fullShare} g))
  else iprop((∃ g, a.view.loc (thr d L) ↦{fullShare} g) ∗ semVal (thr d L, SemLoc.dma sm) 0)

/-- Piece `n` when it exists, nothing otherwise. -/
def xP (n : ℕ) : sProp 𝕄 := if valid L n then xtPiece d L fx n else iprop(emp)
def oP (n : ℕ) : sProp 𝕄 := if valid L n then oPiece d L n else iprop(emp)

/-- What the tile holds outside the slots before trip `t`: every piece of the argument row but those being fetched
    (`2t`, `2t + 1`), every piece of the result but those being written out (`2t - 2`, `2t - 1`). -/
def xSet (t : ℕ) : Finset ℕ := (Finset.range 18).filter fun n => n ≠ 2 * t ∧ n ≠ 2 * t + 1
def oSet (t : ℕ) : Finset ℕ := (Finset.range 18).filter fun n => n + 2 ≠ 2 * t ∧ n + 2 ≠ 2 * t + 1

def inv (t : ℕ) (_ : PUnit) : sProp 𝕄 :=
  iprop(Transfers.MayWaits (thr d L) (none : HIx 22) O
    ∗ (∃ W', ⌜∀ p ∈ W', p ∈ W ∨ p.2 = none⌝ ∗ owes (thr d L) O W')
    ∗ bigSep (xSet t) (xP d L fx) ∗ bigSep (oSet t) (oP d L)
    ∗ inSlot d L fx a4 cc14_scratch4.sem (2 * t) ∗ outSlot d L a6 cc14_scratch6.sem (2 * t)
    ∗ inSlot d L fx a5 cc14_scratch5.sem (2 * t + 1) ∗ outSlot d L a7 cc14_scratch7.sem (2 * t + 1))

omit [FloatOps F] in
theorem two_out {Φ : ℕ → sProp 𝕄} {s : Finset ℕ} {a b : ℕ} (ha : a ∈ s) (hb : b ∈ s) (hab : a ≠ b) :
    bigSep s Φ = iprop(Φ a ∗ Φ b ∗ bigSep ((s.erase a).erase b) Φ) := by
  rw [SparseCore.bigSep_erase' ha, SparseCore.bigSep_erase' (Finset.mem_erase.mpr ⟨fun e => hab e.symm, hb⟩)]

omit [FloatOps F] in
theorem range18_split : (Finset.range 18) = insert 0 (insert 1 (xSet 0)) := by decide

theorem xRange_split (v0 : valid L 0) (v1 : valid L 1) :
    bigSep (Finset.range 18) (xP d L fx) = iprop(xtPiece d L fx 0 ∗ xtPiece d L fx 1 ∗ bigSep (xSet 0) (xP d L fx)) := by
  rw [range18_split, SparseCore.bigSep_insert' (by decide), SparseCore.bigSep_insert' (by decide)]
  unfold xP; rw [if_pos v0, if_pos v1]
omit [FloatOps F] in
theorem oSet_zero : oSet 0 = Finset.range 18 := by decide

theorem inSlot_pos {a : Memref sig .scVector .vmem S8x3200 .f32} {sm : DmaSem sig} {n : ℕ} (v : valid L n) :
    inSlot d L fx a sm n = iprop(∃ g, Transfers.Flight countersEmb (thr d L) (SemLoc.dma sm) (default : HIx 22) NN
      iprop((a.view.loc (thr d L) ↦{fullShare} g) ∗ xtPiece d L fx n)) := by unfold inSlot; rw [if_pos v]
theorem inSlot_neg {a : Memref sig .scVector .vmem S8x3200 .f32} {sm : DmaSem sig} {n : ℕ} (v : ¬ valid L n) :
    inSlot d L fx a sm n = iprop((∃ g, a.view.loc (thr d L) ↦{fullShare} g) ∗ semVal (thr d L, SemLoc.dma sm) 0) := by
  unfold inSlot; rw [if_neg v]
theorem outSlot_pos {a : Memref sig .scVector .vmem S25600 .f32} {sm : DmaSem sig} {m : ℕ} (h : 2 ≤ m ∧ valid L (m - 2)) :
    outSlot (F := F) d L a sm m = iprop(∃ g, Transfers.Flight countersEmb (thr d L) (SemLoc.dma sm) (default : HIx 22) NN
        iprop(oPiece (F := F) d L (m - 2) ∗ ((stg a).view.loc (thr d L) ↦[(stg a).view.set]{fullShare} g))
      ∗ (a.view.loc (thr d L) ↦[Finset.univ \ (stg a).view.set]{fullShare} g)) := by unfold outSlot; rw [if_pos h]
theorem outSlot_neg {a : Memref sig .scVector .vmem S25600 .f32} {sm : DmaSem sig} {m : ℕ} (h : ¬ (2 ≤ m ∧ valid L (m - 2))) :
    outSlot (F := F) d L a sm m = iprop((∃ g, a.view.loc (thr d L) ↦{fullShare} g) ∗ semVal (thr d L, SemLoc.dma sm) 0) := by
  unfold outSlot; rw [if_neg h]

/-- A fetch in flight, its source window spelt by any offsets equal to piece `n`'s, fills the fetch slot for `n`. -/
theorem fl_in {off : Fin 2 → ℕ} {n : ℕ} (h : off = ![14, pos L n]) (p : ∀ a, off a + S1x3200.size a ≤ S22x1600000.size a) (v : valid L n)
    (a : Memref sig .scVector .vmem S8x3200 .f32) (sm : DmaSem sig) :
    (iprop(∃ g, Transfers.Flight countersEmb (thr d L) (SemLoc.dma sm) (default : HIx 22) NN
        iprop((a.view.loc (thr d L) ↦{fullShare} g)
          ∗ (((xtW).slice (Rect.unit (s := S22x1600000) off S1x3200.size p) (fun _ => rfl)).view.loc (thr d L)
              ↦[((xtW).slice (Rect.unit (s := S22x1600000) off S1x3200.size p) (fun _ => rfl)).view.set]{fullShare} fx))) : sProp 𝕄)
      ⊢ inSlot d L fx a sm n := by
  rw [inSlot_pos d L fx v]
  iintro ⟨%g, H⟩
  have hD : (iprop((a.view.loc (thr d L) ↦{fullShare} g)
          ∗ (((xtW).slice (Rect.unit (s := S22x1600000) off S1x3200.size p) (fun _ => rfl)).view.loc (thr d L)
              ↦[((xtW).slice (Rect.unit (s := S22x1600000) off S1x3200.size p) (fun _ => rfl)).view.set]{fullShare} fx)) : sProp 𝕄)
      ⊢ iprop((a.view.loc (thr d L) ↦{fullShare} g) ∗ xtPiece d L fx n) := by
    iintro ⟨H1, H2⟩
    isplitl [H1]; · iexact H1
    iapply (Entails.of_eq (in_congr d L h p (in_inb L n) fx)); iexact H2
  iexists g
  iapply (Transfers.Flight_mono countersEmb (thr d L) hD); iexact H

/-- A write-out in flight, its destination window spelt by any offsets equal to piece `n`'s, with the rest of the
    staging buffer, fills the write-out slot for `n + 2`. -/
theorem fl_out {off : Fin 1 → ℕ} {n : ℕ} (h : off = ![pos L n]) (p : ∀ a, off a + S3200.size a ≤ S1600000.size a) (v : valid L n)
    (a : Memref sig .scVector .vmem S25600 .f32) (sm : DmaSem sig) :
    (iprop(∃ (f : Buf (Elt F) ((oW).view.loc (thr d L))) (g : Buf (Elt F) (a.view.loc (thr d L))), Transfers.Flight countersEmb (thr d L) (SemLoc.dma sm) (default : HIx 22) NN
        iprop((((oW).slice (Rect.unit (s := S1600000) off S3200.size p) (fun _ => rfl)).view.loc (thr d L)
              ↦[((oW).slice (Rect.unit (s := S1600000) off S3200.size p) (fun _ => rfl)).view.set]{fullShare} f)
          ∗ ((stg a).view.loc (thr d L) ↦[(stg a).view.set]{fullShare} g))
        ∗ (a.view.loc (thr d L) ↦[Finset.univ \ (stg a).view.set]{fullShare} g)) : sProp 𝕄)
      ⊢ outSlot (F := F) d L a sm (n + 2) := by
  rw [outSlot_pos (F := F) d L (m := n + 2) ⟨by omega, by simpa using v⟩]
  iintro ⟨%f, %g, H, R⟩
  have hD : (iprop((((oW).slice (Rect.unit (s := S1600000) off S3200.size p) (fun _ => rfl)).view.loc (thr d L)
              ↦[((oW).slice (Rect.unit (s := S1600000) off S3200.size p) (fun _ => rfl)).view.set]{fullShare} f)
          ∗ ((stg a).view.loc (thr d L) ↦[(stg a).view.set]{fullShare} g)) : sProp 𝕄)
      ⊢ iprop(oPiece (F := F) d L (n + 2 - 2) ∗ ((stg a).view.loc (thr d L) ↦[(stg a).view.set]{fullShare} g)) := by
    rw [Nat.add_sub_cancel]
    iintro ⟨H1, H2⟩
    isplitl [H1]
    · iexists f; iapply (Entails.of_eq (out_congr d L h p (out_inb L n) f)); iexact H1
    · iexact H2
  iexists g
  isplitl [H]
  · iapply (Transfers.Flight_mono countersEmb (thr d L) hD); iexact H
  · iexact R

/-! The pieces outside the slots, from one trip to the next. -/
def xCore (k : ℕ) : Finset ℕ := (Finset.range 18).filter fun n => n ≠ 2 * k ∧ n ≠ 2 * k + 1 ∧ n ≠ 2 * k + 2 ∧ n ≠ 2 * k + 3
def oCore (k : ℕ) : Finset ℕ := (Finset.range 18).filter fun n => n + 2 ≠ 2 * k ∧ n + 2 ≠ 2 * k + 1 ∧ n ≠ 2 * k ∧ n ≠ 2 * k + 1

omit [FloatOps F] in
theorem xSet_out (Φ : ℕ → sProp 𝕄) (k : ℕ) (hk : k < 8) : bigSep (xSet k) Φ = iprop(Φ (2 * k + 2) ∗ Φ (2 * k + 3) ∗ bigSep (xCore k) Φ) := by
  have e : ((xSet k).erase (2 * k + 2)).erase (2 * k + 3) = xCore k := by
    ext n; simp only [xSet, xCore, Finset.mem_erase, Finset.mem_filter, Finset.mem_range]; omega
  rw [← e]; exact two_out (by simp only [xSet, Finset.mem_filter, Finset.mem_range]; omega) (by simp only [xSet, Finset.mem_filter, Finset.mem_range]; omega) (by omega)
omit [FloatOps F] in
theorem xSet_in (Φ : ℕ → sProp 𝕄) (k : ℕ) (hk : k < 8) : bigSep (xSet (k + 1)) Φ = iprop(Φ (2 * k) ∗ Φ (2 * k + 1) ∗ bigSep (xCore k) Φ) := by
  have e : ((xSet (k + 1)).erase (2 * k)).erase (2 * k + 1) = xCore k := by
    ext n; simp only [xSet, xCore, Finset.mem_erase, Finset.mem_filter, Finset.mem_range]; omega
  rw [← e]; exact two_out (by simp only [xSet, Finset.mem_filter, Finset.mem_range]; omega) (by simp only [xSet, Finset.mem_filter, Finset.mem_range]; omega) (by omega)
omit [FloatOps F] in
theorem oSet_out (Φ : ℕ → sProp 𝕄) (k : ℕ) (hk : k < 8) : bigSep (oSet k) Φ = iprop(Φ (2 * k) ∗ Φ (2 * k + 1) ∗ bigSep (oCore k) Φ) := by
  have e : ((oSet k).erase (2 * k)).erase (2 * k + 1) = oCore k := by
    ext n; simp only [oSet, oCore, Finset.mem_erase, Finset.mem_filter, Finset.mem_range]; omega
  rw [← e]; exact two_out (by simp only [oSet, Finset.mem_filter, Finset.mem_range]; omega) (by simp only [oSet, Finset.mem_filter, Finset.mem_range]; omega) (by omega)
omit [FloatOps F] in
theorem oSet_in (Φ : ℕ → sProp 𝕄) (k : ℕ) (hk : k < 8) (hk1 : 1 ≤ k) :
    bigSep (oSet (k + 1)) Φ = iprop(Φ (2 * k - 2) ∗ Φ (2 * k - 1) ∗ bigSep (oCore k) Φ) := by
  have e : ((oSet (k + 1)).erase (2 * k - 2)).erase (2 * k - 1) = oCore k := by
    ext n; simp only [oSet, oCore, Finset.mem_erase, Finset.mem_filter, Finset.mem_range]; omega
  rw [← e]; exact two_out (by simp only [oSet, Finset.mem_filter, Finset.mem_range]; omega) (by simp only [oSet, Finset.mem_filter, Finset.mem_range]; omega) (by omega)

theorem xP_pos {n : ℕ} (v : valid L n) : xP d L fx n = xtPiece d L fx n := if_pos v
theorem oP_pos {n : ℕ} (v : valid L n) : oP (F := F) d L n = oPiece (F := F) d L n := if_pos v
theorem xP_neg {n : ℕ} (v : ¬ valid L n) : xP d L fx n = iprop(emp) := if_neg v
theorem oP_neg {n : ℕ} (v : ¬ valid L n) : oP (F := F) d L n = iprop(emp) := if_neg v

/-- Piece `n` of the result at its final contents: row 14 of the transposed argument. -/
def oQ (n : ℕ) : sProp 𝕄 :=
  if valid L n then (outM L n).view.loc (thr d L) ↦[(outM L n).view.set]{fullShare} (Cert.Spec.row 14 fx) else iprop(emp)

/-- What a tile is handed for the call: its pieces of row 14 of the transposed argument, at the argument's contents, and
    its pieces of the result at some contents. What it hands back: the same pieces of the argument, and its pieces of
    the result holding the row. -/
def goRes : sProp 𝕄 := iprop(bigSep (Finset.range 18) (xP d L fx) ∗ bigSep (Finset.range 18) (oP (F := F) d L))
def tdRes : sProp 𝕄 := iprop(bigSep (Finset.range 18) (xP d L fx) ∗ bigSep (Finset.range 18) (oQ d L fx))

end Tile

end Cert.Proof.TileB14

end
-- ==== Proof.TileB15Defs.lean ====
/-
  One vector subcore's task of copy kernel 15 (counting from 0): definitions. The task moves its pieces of row 15 of the
  transposed argument (pieces of 3200 consecutive elements, piece number 2·s + c + 32·n for the subcore (c, s) and
  n = 0, 1, … while that number is below 500) into the flat result: each piece is fetched into a staging row, copied
  16 lanes at a time into a flat staging buffer, and written out, two pieces in flight at a time. Here: the pieces as
  memrefs, the program's own spellings of them, the printed conditions as facts about the trip, the two slots' states
  between trips, and what the tile holds outside the slots.
-/
import proofs.«206869_g37898791420194_cont_8to1_b_558_20_alg».proof.Defs
import Idealize.ShloMosaic.Lib.SparseCore.Launch
import Idealize.ShloMosaic.Lib.StableHlo.Run
import Idealize.ShloMosaic.Lib.Pipeline.Kit
import Idealize.ShloMosaic.Lib.Tactic
import proofs.«206869_g37898791420194_cont_8to1_b_558_20_alg».proof.Proof.Gen.Kernel
import proofs.«206869_g37898791420194_cont_8to1_b_558_20_alg».proof.Proof.Gen.Kernel.Skeleton
import proofs.«206869_g37898791420194_cont_8to1_b_558_20_alg».proof.Proof.Spec

noncomputable section

namespace Cert.Proof.TileB15

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

abbrev ΛP : Labels := Pipeline.Sig Λ₀ (Fin 0) fun p => (pcfgs (F := F) p).Adm
abbrev K : SparseCore.Cfg τ sig (ΛP (F := F)) 22 := sc (F := F)
abbrev 𝒱₀ : Variants := Variants.none

abbrev UH : Type := URounds (GSem nD τ sig) ℕ
abbrev UU : Type := UH × Counters

local notation "𝕄" => MT nD τ sig (HIx 22) (Elt F) ℕ UU ℕ

local notation "xtW" => (Memref.whole Cert.Kernel.main_v0_scv : Memref Cert.Kernel.sig Kind.scVector Space.hbm Cert.Kernel.S22x1600000 EltTy.f32)
local notation "oW" => (Memref.whole Cert.Kernel.main_v16_scv : Memref Cert.Kernel.sig Kind.scVector Space.hbm Cert.Kernel.S1600000 EltTy.f32)
local notation "a4" => (Memref.whole Cert.Kernel.cc15_scratch0 : Memref Cert.Kernel.sig Kind.scVector Space.vmem Cert.Kernel.S8x3200 EltTy.f32)
local notation "a5" => (Memref.whole Cert.Kernel.cc15_scratch1 : Memref Cert.Kernel.sig Kind.scVector Space.vmem Cert.Kernel.S8x3200 EltTy.f32)
local notation "a6" => (Memref.whole Cert.Kernel.cc15_scratch2 : Memref Cert.Kernel.sig Kind.scVector Space.vmem Cert.Kernel.S25600 EltTy.f32)
local notation "a7" => (Memref.whole Cert.Kernel.cc15_scratch3 : Memref Cert.Kernel.sig Kind.scVector Space.vmem Cert.Kernel.S25600 EltTy.f32)

variable [FloatOps F]

section Tile

variable (d : Dev nD) (L : grid15.Coords)

abbrev cV (L : grid15.Coords) : Fin τ.nSC := (L 0).castLE hcore15
abbrev jV (L : grid15.Coords) : Fin τ.nSub := (L 1).castLE hsub15
abbrev thr (d : Dev nD) (L : grid15.Coords) : Thread nD τ := V d (cV L) (jV L)

/-- The tile's number 2·s + c, and whether it has sixteen pieces (numbers below 20) or fifteen. -/
abbrev wid (L : grid15.Coords) : ℕ := 2 * (L 1).val + (L 0).val
abbrev big (L : grid15.Coords) : Prop := wid L < 20

omit [FloatOps F] in
theorem wid_lt (L : grid15.Coords) : wid L < 32 := by
  have h0 : (L 0).val < 2 := (L 0).isLt
  have h1 : (L 1).val < 16 := (L 1).isLt
  unfold wid; omega

/-- Piece `n` of the tile exists: `n < 15`, or `n = 15` on a tile with sixteen pieces. It is the piece number
    `wid + 32·n < 500` of the row. -/
def valid (L : grid15.Coords) (n : ℕ) : Prop := n < 15 ∨ (n = 15 ∧ big L)
instance (L : grid15.Coords) (n : ℕ) : Decidable (valid L n) := by unfold valid big; infer_instance

omit [FloatOps F] in
theorem valid_iff (L : grid15.Coords) (n : ℕ) : valid L n ↔ wid L + 32 * n < 500 := by
  have := wid_lt L; unfold valid big; omega

/-- Where piece `n` starts in the row (clamped to the last piece of the row, so that the rectangle is in bounds for
    every `n`; for a valid piece the clamp is idle). -/
abbrev pos (L : grid15.Coords) (n : ℕ) : ℕ := 3200 * min (wid L + 32 * n) 499

omit [FloatOps F] in
theorem pos_valid {L : grid15.Coords} {n : ℕ} (h : valid L n) : pos L n = 6400 * (L 1).val + 3200 * (L 0).val + 102400 * n := by
  have := (valid_iff L n).mp h; unfold pos wid at *; omega

omit [FloatOps F] in
theorem in_inb (L : grid15.Coords) (n : ℕ) : ∀ a, (![15, pos L n] : Fin 2 → ℕ) a + S1x3200.size a ≤ S22x1600000.size a := by
  intro a; fin_cases a
  · show 15 + 1 ≤ 22; omega
  · show pos L n + 3200 ≤ 1600000; unfold pos; omega
omit [FloatOps F] in
theorem out_inb (L : grid15.Coords) (n : ℕ) : ∀ a, (![pos L n] : Fin 1 → ℕ) a + S3200.size a ≤ S1600000.size a := by
  intro a; fin_cases a
  show pos L n + 3200 ≤ 1600000; unfold pos; omega

/-- Piece `n` of row 15 of the transposed argument, and piece `n` of the flat result, as memrefs of the tile. -/
abbrev inM (L : grid15.Coords) (n : ℕ) : Memref sig .scVector .hbm S1x3200 .f32 :=
  (xtW).slice (Rect.unit (s := S22x1600000) ![15, pos L n] S1x3200.size (in_inb L n)) (fun _ => rfl)
abbrev outM (L : grid15.Coords) (n : ℕ) : Memref sig .scVector .hbm S3200 .f32 :=
  (oW).slice (Rect.unit (s := S1600000) ![pos L n] S3200.size (out_inb L n)) (fun _ => rfl)

/-! The program's own slices are these pieces: by the closed forms of its offset functions. -/

omit [FloatOps F] in
theorem off2 {a b : ℕ} (h : a = b) : (![15, a] : Fin 2 → ℕ) = ![15, b] := by rw [h]
omit [FloatOps F] in
theorem off1' {a b : ℕ} (h : a = b) : (![a] : Fin 1 → ℕ) = ![b] := by rw [h]

omit [FloatOps F] in
theorem off_in0 (L : grid15.Coords) (h : valid L 0) : k15_off1 L 0#32 = ![15, pos L 0] :=
  (k15_off1_eq L 0).trans (off2 (by rw [pos_valid h]; simp))
omit [FloatOps F] in
theorem off_in1 (L : grid15.Coords) (h : valid L 1) : k15_off1 L 32#32 = ![15, pos L 1] :=
  (k15_off1_eq L 1).trans (off2 (by rw [pos_valid h]; simp))
omit [FloatOps F] in
theorem off_6 (L : grid15.Coords) (t : Fin k15_t1_loop.trips) (h : valid L (2 * t.val + 2)) : k15_off6 L t = ![15, pos L (2 * t.val + 2)] :=
  (k15_off6_eq L t).trans (off2 (by rw [pos_valid h]; omega))
omit [FloatOps F] in
theorem off_11 (L : grid15.Coords) (t : Fin k15_t1_loop.trips) (h : valid L (2 * t.val + 3)) : k15_off11 L t = ![15, pos L (2 * t.val + 3)] :=
  (k15_off11_eq L t).trans (off2 (by rw [pos_valid h]; omega))
omit [FloatOps F] in
theorem off_5 (L : grid15.Coords) (t : Fin k15_t1_loop.trips) (h : valid L (2 * t.val)) : k15_off5 L t = ![pos L (2 * t.val)] :=
  (k15_off5_eq L t).trans (off1' (by rw [pos_valid h]; omega))
omit [FloatOps F] in
theorem off_10 (L : grid15.Coords) (t : Fin k15_t1_loop.trips) (h : valid L (2 * t.val + 1)) : k15_off10 L t = ![pos L (2 * t.val + 1)] :=
  (k15_off10_eq L t).trans (off1' (by rw [pos_valid h]; omega))

/-- Holding a 1 × 3200 window of the transposed argument, or a 3200 window of the result, by exactly its elements
    says the same whichever way the window's offsets are spelt. -/
theorem in_congr {off off' : Fin 2 → ℕ} (h : off = off') (p : ∀ a, off a + S1x3200.size a ≤ S22x1600000.size a)
    (p' : ∀ a, off' a + S1x3200.size a ≤ S22x1600000.size a) (f : Buf (Elt F) ((xtW).view.loc (thr d L))) :
    (((xtW).slice (Rect.unit (s := S22x1600000) off S1x3200.size p) (fun _ => rfl)).view.loc (thr d L)
        ↦[((xtW).slice (Rect.unit (s := S22x1600000) off S1x3200.size p) (fun _ => rfl)).view.set]{fullShare} f : sProp 𝕄)
      = (((xtW).slice (Rect.unit (s := S22x1600000) off' S1x3200.size p') (fun _ => rfl)).view.loc (thr d L)
        ↦[((xtW).slice (Rect.unit (s := S22x1600000) off' S1x3200.size p') (fun _ => rfl)).view.set]{fullShare} f) := by
  subst h; rfl
theorem out_congr {off off' : Fin 1 → ℕ} (h : off = off') (p : ∀ a, off a + S3200.size a ≤ S1600000.size a)
    (p' : ∀ a, off' a + S3200.size a ≤ S1600000.size a) (f : Buf (Elt F) ((oW).view.loc (thr d L))) :
    (((oW).slice (Rect.unit (s := S1600000) off S3200.size p) (fun _ => rfl)).view.loc (thr d L)
        ↦[((oW).slice (Rect.unit (s := S1600000) off S3200.size p) (fun _ => rfl)).view.set]{fullShare} f : sProp 𝕄)
      = (((oW).slice (Rect.unit (s := S1600000) off' S3200.size p') (fun _ => rfl)).view.loc (thr d L)
        ↦[((oW).slice (Rect.unit (s := S1600000) off' S3200.size p') (fun _ => rfl)).view.set]{fullShare} f) := by
  subst h; rfl

/-! The printed conditions, as facts about the trip and the tile. -/

omit [FloatOps F] in
theorem trips1 : k15_t1_loop.trips = 8 := by decide
omit [FloatOps F] in
theorem cond1_iff : ∀ (t : Fin k15_t1_loop.trips), k15_cond1 t = 1#1 ↔ 1 ≤ t.val := by decide +kernel
omit [FloatOps F] in
theorem cond2_iff : ∀ (L : grid15.Coords) (t : Fin k15_t1_loop.trips), k15_cond2 L t = 1#1 := by decide +kernel
omit [FloatOps F] in
theorem cond3_iff : ∀ (L : grid15.Coords) (t : Fin k15_t1_loop.trips), k15_cond3 L t = 1#1 ↔ t.val ≤ 6 := by decide +kernel
omit [FloatOps F] in
theorem cond4_iff : ∀ (t : Fin k15_t1_loop.trips), k15_cond4 t = 1#1 ↔ 1 ≤ t.val := by decide +kernel
omit [FloatOps F] in
theorem cond5_iff : ∀ (L : grid15.Coords) (t : Fin k15_t1_loop.trips), k15_cond5 L t = 1#1 ↔ (t.val ≤ 6 ∨ big L) := by decide +kernel
omit [FloatOps F] in
theorem cond6_iff : ∀ (L : grid15.Coords) (t : Fin k15_t1_loop.trips), k15_cond6 L t = 1#1 ↔ (t.val ≤ 5 ∨ (t.val = 6 ∧ big L)) := by decide +kernel
omit [FloatOps F] in
theorem cond7_iff : ∀ (L : grid15.Coords), k15_cond7 L = 1#1 := by decide +kernel
omit [FloatOps F] in
theorem cond8_iff : ∀ (L : grid15.Coords), k15_cond8 L = 1#1 ↔ big L := by decide +kernel

variable (O : CellTallies nD τ sig (HIx 22)) (W : Waits sig (HIx 22))
variable (fx : Buf (Elt F) ((xtW).view.loc (thr d L)))

abbrev NN : ℕ := 102400

/-- The 3200-element window of a flat staging buffer that a piece is written out from. -/
abbrev stg (a : Memref sig .scVector .vmem S25600 .f32) : Memref sig .scVector .vmem S3200 .f32 :=
  a.slice (Rect.unit (s := S25600) ![0] S3200.size inb_S25600_S3200_0) (fun _ => rfl)

/-- Piece `n` of the argument row held by exactly its elements, at the argument's contents; piece `n` of the result
    held by exactly its elements, at some contents. -/
abbrev xtPiece (n : ℕ) : sProp 𝕄 := (inM L n).view.loc (thr d L) ↦[(inM L n).view.set]{fullShare} fx
abbrev oPiece (n : ℕ) : sProp 𝕄 := iprop(∃ f, (outM L n).view.loc (thr d L) ↦[(outM L n).view.set]{fullShare} f)

/-- The lane-copy loop of a slot: the staging row keeps its contents, the flat staging buffer holds some contents. -/
def laneInv0 (g4 : Buf (Elt F) ((a4).view.loc (thr d L))) (_ : ℕ) (_ : PUnit) : sProp 𝕄 :=
  iprop(((a4).view.loc (thr d L) ↦{fullShare} g4) ∗ (∃ g, (a6).view.loc (thr d L) ↦{fullShare} g))
def laneInv1 (g5 : Buf (Elt F) ((a5).view.loc (thr d L))) (_ : ℕ) (_ : PUnit) : sProp 𝕄 :=
  iprop(((a5).view.loc (thr d L) ↦{fullShare} g5) ∗ (∃ g, (a7).view.loc (thr d L) ↦{fullShare} g))

/-- A fetch slot before trip work on piece `n`: the piece's fetch in flight (it will hand back the staging row at some
    contents, and the piece), or, when there is no such piece, the slot idle. -/
def inSlot (a : Memref sig .scVector .vmem S8x3200 .f32) (sm : DmaSem sig) (n : ℕ) : sProp 𝕄 :=
  if valid L n then
    iprop(∃ g, Transfers.Flight countersEmb (thr d L) (SemLoc.dma sm) (default : HIx 22) NN
      iprop((a.view.loc (thr d L) ↦{fullShare} g) ∗ xtPiece d L fx n))
  else iprop((∃ g, a.view.loc (thr d L) ↦{fullShare} g) ∗ semVal (thr d L, SemLoc.dma sm) 0)

/-- A write-out slot before trip work on piece `m`: piece `m - 2`'s write-out in flight (it will hand back that piece
    of the result at some contents, and the staging window), the rest of the staging buffer beside it; or idle. -/
def outSlot (a : Memref sig .scVector .vmem S25600 .f32) (sm : DmaSem sig) (m : ℕ) : sProp 𝕄 :=
  if 2 ≤ m ∧ valid L (m - 2) then
    iprop(∃ g, Transfers.Flight countersEmb (thr d L) (SemLoc.dma sm) (default : HIx 22) NN
        iprop(oPiece d L (m - 2) ∗ ((stg a).view.loc (thr d L) ↦[(stg a).view.set]{fullShare} g))
      ∗ (a.view.loc (thr d L) ↦[Finset.univ \ (stg a).view.set]{fullShare} g))
  else iprop((∃ g, a.view.loc (thr d L) ↦{fullShare} g) ∗ semVal (thr d L, SemLoc.dma sm) 0)

/-- Piece `n` when it exists, nothing otherwise. -/
def xP (n : ℕ) : sProp 𝕄 := if valid L n then xtPiece d L fx n else iprop(emp)
def oP (n : ℕ) : sProp 𝕄 := if valid L n then oPiece d L n else iprop(emp)

/-- What the tile holds outside the slots before trip `t`: every piece of the argument row but those being fetched
    (`2t`, `2t + 1`), every piece of the result but those being written out (`2t - 2`, `2t - 1`). -/
def xSet (t : ℕ) : Finset ℕ := (Finset.range 18).filter fun n => n ≠ 2 * t ∧ n ≠ 2 * t + 1
def oSet (t : ℕ) : Finset ℕ := (Finset.range 18).filter fun n => n + 2 ≠ 2 * t ∧ n + 2 ≠ 2 * t + 1

def inv (t : ℕ) (_ : PUnit) : sProp 𝕄 :=
  iprop(Transfers.MayWaits (thr d L) (none : HIx 22) O
    ∗ (∃ W', ⌜∀ p ∈ W', p ∈ W ∨ p.2 = none⌝ ∗ owes (thr d L) O W')
    ∗ bigSep (xSet t) (xP d L fx) ∗ bigSep (oSet t) (oP d L)
    ∗ inSlot d L fx a4 cc15_scratch4.sem (2 * t) ∗ outSlot d L a6 cc15_scratch6.sem (2 * t)
    ∗ inSlot d L fx a5 cc15_scratch5.sem (2 * t + 1) ∗ outSlot d L a7 cc15_scratch7.sem (2 * t + 1))

omit [FloatOps F] in
theorem two_out {Φ : ℕ → sProp 𝕄} {s : Finset ℕ} {a b : ℕ} (ha : a ∈ s) (hb : b ∈ s) (hab : a ≠ b) :
    bigSep s Φ = iprop(Φ a ∗ Φ b ∗ bigSep ((s.erase a).erase b) Φ) := by
  rw [SparseCore.bigSep_erase' ha, SparseCore.bigSep_erase' (Finset.mem_erase.mpr ⟨fun e => hab e.symm, hb⟩)]

omit [FloatOps F] in
theorem range18_split : (Finset.range 18) = insert 0 (insert 1 (xSet 0)) := by decide

theorem xRange_split (v0 : valid L 0) (v1 : valid L 1) :
    bigSep (Finset.range 18) (xP d L fx) = iprop(xtPiece d L fx 0 ∗ xtPiece d L fx 1 ∗ bigSep (xSet 0) (xP d L fx)) := by
  rw [range18_split, SparseCore.bigSep_insert' (by decide), SparseCore.bigSep_insert' (by decide)]
  unfold xP; rw [if_pos v0, if_pos v1]
omit [FloatOps F] in
theorem oSet_zero : oSet 0 = Finset.range 18 := by decide

theorem inSlot_pos {a : Memref sig .scVector .vmem S8x3200 .f32} {sm : DmaSem sig} {n : ℕ} (v : valid L n) :
    inSlot d L fx a sm n = iprop(∃ g, Transfers.Flight countersEmb (thr d L) (SemLoc.dma sm) (default : HIx 22) NN
      iprop((a.view.loc (thr d L) ↦{fullShare} g) ∗ xtPiece d L fx n)) := by unfold inSlot; rw [if_pos v]
theorem inSlot_neg {a : Memref sig .scVector .vmem S8x3200 .f32} {sm : DmaSem sig} {n : ℕ} (v : ¬ valid L n) :
    inSlot d L fx a sm n = iprop((∃ g, a.view.loc (thr d L) ↦{fullShare} g) ∗ semVal (thr d L, SemLoc.dma sm) 0) := by
  unfold inSlot; rw [if_neg v]
theorem outSlot_pos {a : Memref sig .scVector .vmem S25600 .f32} {sm : DmaSem sig} {m : ℕ} (h : 2 ≤ m ∧ valid L (m - 2)) :
    outSlot (F := F) d L a sm m = iprop(∃ g, Transfers.Flight countersEmb (thr d L) (SemLoc.dma sm) (default : HIx 22) NN
        iprop(oPiece (F := F) d L (m - 2) ∗ ((stg a).view.loc (thr d L) ↦[(stg a).view.set]{fullShare} g))
      ∗ (a.view.loc (thr d L) ↦[Finset.univ \ (stg a).view.set]{fullShare} g)) := by unfold outSlot; rw [if_pos h]
theorem outSlot_neg {a : Memref sig .scVector .vmem S25600 .f32} {sm : DmaSem sig} {m : ℕ} (h : ¬ (2 ≤ m ∧ valid L (m - 2))) :
    outSlot (F := F) d L a sm m = iprop((∃ g, a.view.loc (thr d L) ↦{fullShare} g) ∗ semVal (thr d L, SemLoc.dma sm) 0) := by
  unfold outSlot; rw [if_neg h]

/-- A fetch in flight, its source window spelt by any offsets equal to piece `n`'s, fills the fetch slot for `n`. -/
theorem fl_in {off : Fin 2 → ℕ} {n : ℕ} (h : off = ![15, pos L n]) (p : ∀ a, off a + S1x3200.size a ≤ S22x1600000.size a) (v : valid L n)
    (a : Memref sig .scVector .vmem S8x3200 .f32) (sm : DmaSem sig) :
    (iprop(∃ g, Transfers.Flight countersEmb (thr d L) (SemLoc.dma sm) (default : HIx 22) NN
        iprop((a.view.loc (thr d L) ↦{fullShare} g)
          ∗ (((xtW).slice (Rect.unit (s := S22x1600000) off S1x3200.size p) (fun _ => rfl)).view.loc (thr d L)
              ↦[((xtW).slice (Rect.unit (s := S22x1600000) off S1x3200.size p) (fun _ => rfl)).view.set]{fullShare} fx))) : sProp 𝕄)
      ⊢ inSlot d L fx a sm n := by
  rw [inSlot_pos d L fx v]
  iintro ⟨%g, H⟩
  have hD : (iprop((a.view.loc (thr d L) ↦{fullShare} g)
          ∗ (((xtW).slice (Rect.unit (s := S22x1600000) off S1x3200.size p) (fun _ => rfl)).view.loc (thr d L)
              ↦[((xtW).slice (Rect.unit (s := S22x1600000) off S1x3200.size p) (fun _ => rfl)).view.set]{fullShare} fx)) : sProp 𝕄)
      ⊢ iprop((a.view.loc (thr d L) ↦{fullShare} g) ∗ xtPiece d L fx n) := by
    iintro ⟨H1, H2⟩
    isplitl [H1]; · iexact H1
    iapply (Entails.of_eq (in_congr d L h p (in_inb L n) fx)); iexact H2
  iexists g
  iapply (Transfers.Flight_mono countersEmb (thr d L) hD); iexact H

/-- A write-out in flight, its destination window spelt by any offsets equal to piece `n`'s, with the rest of the
    staging buffer, fills the write-out slot for `n + 2`. -/
theorem fl_out {off : Fin 1 → ℕ} {n : ℕ} (h : off = ![pos L n]) (p : ∀ a, off a + S3200.size a ≤ S1600000.size a) (v : valid L n)
    (a : Memref sig .scVector .vmem S25600 .f32) (sm : DmaSem sig) :
    (iprop(∃ (f : Buf (Elt F) ((oW).view.loc (thr d L))) (g : Buf (Elt F) (a.view.loc (thr d L))), Transfers.Flight countersEmb (thr d L) (SemLoc.dma sm) (default : HIx 22) NN
        iprop((((oW).slice (Rect.unit (s := S1600000) off S3200.size p) (fun _ => rfl)).view.loc (thr d L)
              ↦[((oW).slice (Rect.unit (s := S1600000) off S3200.size p) (fun _ => rfl)).view.set]{fullShare} f)
          ∗ ((stg a).view.loc (thr d L) ↦[(stg a).view.set]{fullShare} g))
        ∗ (a.view.loc (thr d L) ↦[Finset.univ \ (stg a).view.set]{fullShare} g)) : sProp 𝕄)
      ⊢ outSlot (F := F) d L a sm (n + 2) := by
  rw [outSlot_pos (F := F) d L (m := n + 2) ⟨by omega, by simpa using v⟩]
  iintro ⟨%f, %g, H, R⟩
  have hD : (iprop((((oW).slice (Rect.unit (s := S1600000) off S3200.size p) (fun _ => rfl)).view.loc (thr d L)
              ↦[((oW).slice (Rect.unit (s := S1600000) off S3200.size p) (fun _ => rfl)).view.set]{fullShare} f)
          ∗ ((stg a).view.loc (thr d L) ↦[(stg a).view.set]{fullShare} g)) : sProp 𝕄)
      ⊢ iprop(oPiece (F := F) d L (n + 2 - 2) ∗ ((stg a).view.loc (thr d L) ↦[(stg a).view.set]{fullShare} g)) := by
    rw [Nat.add_sub_cancel]
    iintro ⟨H1, H2⟩
    isplitl [H1]
    · iexists f; iapply (Entails.of_eq (out_congr d L h p (out_inb L n) f)); iexact H1
    · iexact H2
  iexists g
  isplitl [H]
  · iapply (Transfers.Flight_mono countersEmb (thr d L) hD); iexact H
  · iexact R

/-! The pieces outside the slots, from one trip to the next. -/
def xCore (k : ℕ) : Finset ℕ := (Finset.range 18).filter fun n => n ≠ 2 * k ∧ n ≠ 2 * k + 1 ∧ n ≠ 2 * k + 2 ∧ n ≠ 2 * k + 3
def oCore (k : ℕ) : Finset ℕ := (Finset.range 18).filter fun n => n + 2 ≠ 2 * k ∧ n + 2 ≠ 2 * k + 1 ∧ n ≠ 2 * k ∧ n ≠ 2 * k + 1

omit [FloatOps F] in
theorem xSet_out (Φ : ℕ → sProp 𝕄) (k : ℕ) (hk : k < 8) : bigSep (xSet k) Φ = iprop(Φ (2 * k + 2) ∗ Φ (2 * k + 3) ∗ bigSep (xCore k) Φ) := by
  have e : ((xSet k).erase (2 * k + 2)).erase (2 * k + 3) = xCore k := by
    ext n; simp only [xSet, xCore, Finset.mem_erase, Finset.mem_filter, Finset.mem_range]; omega
  rw [← e]; exact two_out (by simp only [xSet, Finset.mem_filter, Finset.mem_range]; omega) (by simp only [xSet, Finset.mem_filter, Finset.mem_range]; omega) (by omega)
omit [FloatOps F] in
theorem xSet_in (Φ : ℕ → sProp 𝕄) (k : ℕ) (hk : k < 8) : bigSep (xSet (k + 1)) Φ = iprop(Φ (2 * k) ∗ Φ (2 * k + 1) ∗ bigSep (xCore k) Φ) := by
  have e : ((xSet (k + 1)).erase (2 * k)).erase (2 * k + 1) = xCore k := by
    ext n; simp only [xSet, xCore, Finset.mem_erase, Finset.mem_filter, Finset.mem_range]; omega
  rw [← e]; exact two_out (by simp only [xSet, Finset.mem_filter, Finset.mem_range]; omega) (by simp only [xSet, Finset.mem_filter, Finset.mem_range]; omega) (by omega)
omit [FloatOps F] in
theorem oSet_out (Φ : ℕ → sProp 𝕄) (k : ℕ) (hk : k < 8) : bigSep (oSet k) Φ = iprop(Φ (2 * k) ∗ Φ (2 * k + 1) ∗ bigSep (oCore k) Φ) := by
  have e : ((oSet k).erase (2 * k)).erase (2 * k + 1) = oCore k := by
    ext n; simp only [oSet, oCore, Finset.mem_erase, Finset.mem_filter, Finset.mem_range]; omega
  rw [← e]; exact two_out (by simp only [oSet, Finset.mem_filter, Finset.mem_range]; omega) (by simp only [oSet, Finset.mem_filter, Finset.mem_range]; omega) (by omega)
omit [FloatOps F] in
theorem oSet_in (Φ : ℕ → sProp 𝕄) (k : ℕ) (hk : k < 8) (hk1 : 1 ≤ k) :
    bigSep (oSet (k + 1)) Φ = iprop(Φ (2 * k - 2) ∗ Φ (2 * k - 1) ∗ bigSep (oCore k) Φ) := by
  have e : ((oSet (k + 1)).erase (2 * k - 2)).erase (2 * k - 1) = oCore k := by
    ext n; simp only [oSet, oCore, Finset.mem_erase, Finset.mem_filter, Finset.mem_range]; omega
  rw [← e]; exact two_out (by simp only [oSet, Finset.mem_filter, Finset.mem_range]; omega) (by simp only [oSet, Finset.mem_filter, Finset.mem_range]; omega) (by omega)

theorem xP_pos {n : ℕ} (v : valid L n) : xP d L fx n = xtPiece d L fx n := if_pos v
theorem oP_pos {n : ℕ} (v : valid L n) : oP (F := F) d L n = oPiece (F := F) d L n := if_pos v
theorem xP_neg {n : ℕ} (v : ¬ valid L n) : xP d L fx n = iprop(emp) := if_neg v
theorem oP_neg {n : ℕ} (v : ¬ valid L n) : oP (F := F) d L n = iprop(emp) := if_neg v

/-- Piece `n` of the result at its final contents: row 15 of the transposed argument. -/
def oQ (n : ℕ) : sProp 𝕄 :=
  if valid L n then (outM L n).view.loc (thr d L) ↦[(outM L n).view.set]{fullShare} (Cert.Spec.row 15 fx) else iprop(emp)

/-- What a tile is handed for the call: its pieces of row 15 of the transposed argument, at the argument's contents, and
    its pieces of the result at some contents. What it hands back: the same pieces of the argument, and its pieces of
    the result holding the row. -/
def goRes : sProp 𝕄 := iprop(bigSep (Finset.range 18) (xP d L fx) ∗ bigSep (Finset.range 18) (oP (F := F) d L))
def tdRes : sProp 𝕄 := iprop(bigSep (Finset.range 18) (xP d L fx) ∗ bigSep (Finset.range 18) (oQ d L fx))

end Tile

end Cert.Proof.TileB15

end
-- ==== Proof.TileB16Defs.lean ====
/-
  One vector subcore's task of copy kernel 16 (counting from 0): definitions. The task moves its pieces of row 16 of the
  transposed argument (pieces of 3200 consecutive elements, piece number 2·s + c + 32·n for the subcore (c, s) and
  n = 0, 1, … while that number is below 500) into the flat result: each piece is fetched into a staging row, copied
  16 lanes at a time into a flat staging buffer, and written out, two pieces in flight at a time. Here: the pieces as
  memrefs, the program's own spellings of them, the printed conditions as facts about the trip, the two slots' states
  between trips, and what the tile holds outside the slots.
-/
import proofs.«206869_g37898791420194_cont_8to1_b_558_20_alg».proof.Defs
import Idealize.ShloMosaic.Lib.SparseCore.Launch
import Idealize.ShloMosaic.Lib.StableHlo.Run
import Idealize.ShloMosaic.Lib.Pipeline.Kit
import Idealize.ShloMosaic.Lib.Tactic
import proofs.«206869_g37898791420194_cont_8to1_b_558_20_alg».proof.Proof.Gen.Kernel
import proofs.«206869_g37898791420194_cont_8to1_b_558_20_alg».proof.Proof.Gen.Kernel.Skeleton
import proofs.«206869_g37898791420194_cont_8to1_b_558_20_alg».proof.Proof.Spec

noncomputable section

namespace Cert.Proof.TileB16

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

abbrev ΛP : Labels := Pipeline.Sig Λ₀ (Fin 0) fun p => (pcfgs (F := F) p).Adm
abbrev K : SparseCore.Cfg τ sig (ΛP (F := F)) 22 := sc (F := F)
abbrev 𝒱₀ : Variants := Variants.none

abbrev UH : Type := URounds (GSem nD τ sig) ℕ
abbrev UU : Type := UH × Counters

local notation "𝕄" => MT nD τ sig (HIx 22) (Elt F) ℕ UU ℕ

local notation "xtW" => (Memref.whole Cert.Kernel.main_v0_scv : Memref Cert.Kernel.sig Kind.scVector Space.hbm Cert.Kernel.S22x1600000 EltTy.f32)
local notation "oW" => (Memref.whole Cert.Kernel.main_v17_scv : Memref Cert.Kernel.sig Kind.scVector Space.hbm Cert.Kernel.S1600000 EltTy.f32)
local notation "a4" => (Memref.whole Cert.Kernel.cc16_scratch0 : Memref Cert.Kernel.sig Kind.scVector Space.vmem Cert.Kernel.S8x3200 EltTy.f32)
local notation "a5" => (Memref.whole Cert.Kernel.cc16_scratch1 : Memref Cert.Kernel.sig Kind.scVector Space.vmem Cert.Kernel.S8x3200 EltTy.f32)
local notation "a6" => (Memref.whole Cert.Kernel.cc16_scratch2 : Memref Cert.Kernel.sig Kind.scVector Space.vmem Cert.Kernel.S25600 EltTy.f32)
local notation "a7" => (Memref.whole Cert.Kernel.cc16_scratch3 : Memref Cert.Kernel.sig Kind.scVector Space.vmem Cert.Kernel.S25600 EltTy.f32)

variable [FloatOps F]

section Tile

variable (d : Dev nD) (L : grid16.Coords)

abbrev cV (L : grid16.Coords) : Fin τ.nSC := (L 0).castLE hcore16
abbrev jV (L : grid16.Coords) : Fin τ.nSub := (L 1).castLE hsub16
abbrev thr (d : Dev nD) (L : grid16.Coords) : Thread nD τ := V d (cV L) (jV L)

/-- The tile's number 2·s + c, and whether it has sixteen pieces (numbers below 20) or fifteen. -/
abbrev wid (L : grid16.Coords) : ℕ := 2 * (L 1).val + (L 0).val
abbrev big (L : grid16.Coords) : Prop := wid L < 20

omit [FloatOps F] in
theorem wid_lt (L : grid16.Coords) : wid L < 32 := by
  have h0 : (L 0).val < 2 := (L 0).isLt
  have h1 : (L 1).val < 16 := (L 1).isLt
  unfold wid; omega

/-- Piece `n` of the tile exists: `n < 15`, or `n = 15` on a tile with sixteen pieces. It is the piece number
    `wid + 32·n < 500` of the row. -/
def valid (L : grid16.Coords) (n : ℕ) : Prop := n < 15 ∨ (n = 15 ∧ big L)
instance (L : grid16.Coords) (n : ℕ) : Decidable (valid L n) := by unfold valid big; infer_instance

omit [FloatOps F] in
theorem valid_iff (L : grid16.Coords) (n : ℕ) : valid L n ↔ wid L + 32 * n < 500 := by
  have := wid_lt L; unfold valid big; omega

/-- Where piece `n` starts in the row (clamped to the last piece of the row, so that the rectangle is in bounds for
    every `n`; for a valid piece the clamp is idle). -/
abbrev pos (L : grid16.Coords) (n : ℕ) : ℕ := 3200 * min (wid L + 32 * n) 499

omit [FloatOps F] in
theorem pos_valid {L : grid16.Coords} {n : ℕ} (h : valid L n) : pos L n = 6400 * (L 1).val + 3200 * (L 0).val + 102400 * n := by
  have := (valid_iff L n).mp h; unfold pos wid at *; omega

omit [FloatOps F] in
theorem in_inb (L : grid16.Coords) (n : ℕ) : ∀ a, (![16, pos L n] : Fin 2 → ℕ) a + S1x3200.size a ≤ S22x1600000.size a := by
  intro a; fin_cases a
  · show 16 + 1 ≤ 22; omega
  · show pos L n + 3200 ≤ 1600000; unfold pos; omega
omit [FloatOps F] in
theorem out_inb (L : grid16.Coords) (n : ℕ) : ∀ a, (![pos L n] : Fin 1 → ℕ) a + S3200.size a ≤ S1600000.size a := by
  intro a; fin_cases a
  show pos L n + 3200 ≤ 1600000; unfold pos; omega

/-- Piece `n` of row 16 of the transposed argument, and piece `n` of the flat result, as memrefs of the tile. -/
abbrev inM (L : grid16.Coords) (n : ℕ) : Memref sig .scVector .hbm S1x3200 .f32 :=
  (xtW).slice (Rect.unit (s := S22x1600000) ![16, pos L n] S1x3200.size (in_inb L n)) (fun _ => rfl)
abbrev outM (L : grid16.Coords) (n : ℕ) : Memref sig .scVector .hbm S3200 .f32 :=
  (oW).slice (Rect.unit (s := S1600000) ![pos L n] S3200.size (out_inb L n)) (fun _ => rfl)

/-! The program's own slices are these pieces: by the closed forms of its offset functions. -/

omit [FloatOps F] in
theorem off2 {a b : ℕ} (h : a = b) : (![16, a] : Fin 2 → ℕ) = ![16, b] := by rw [h]
omit [FloatOps F] in
theorem off1' {a b : ℕ} (h : a = b) : (![a] : Fin 1 → ℕ) = ![b] := by rw [h]

omit [FloatOps F] in
theorem off_in0 (L : grid16.Coords) (h : valid L 0) : k16_off1 L 0#32 = ![16, pos L 0] :=
  (k16_off1_eq L 0).trans (off2 (by rw [pos_valid h]; simp))
omit [FloatOps F] in
theorem off_in1 (L : grid16.Coords) (h : valid L 1) : k16_off1 L 32#32 = ![16, pos L 1] :=
  (k16_off1_eq L 1).trans (off2 (by rw [pos_valid h]; simp))
omit [FloatOps F] in
theorem off_6 (L : grid16.Coords) (t : Fin k16_t1_loop.trips) (h : valid L (2 * t.val + 2)) : k16_off6 L t = ![16, pos L (2 * t.val + 2)] :=
  (k16_off6_eq L t).trans (off2 (by rw [pos_valid h]; omega))
omit [FloatOps F] in
theorem off_11 (L : grid16.Coords) (t : Fin k16_t1_loop.trips) (h : valid L (2 * t.val + 3)) : k16_off11 L t = ![16, pos L (2 * t.val + 3)] :=
  (k16_off11_eq L t).trans (off2 (by rw [pos_valid h]; omega))
omit [FloatOps F] in
theorem off_5 (L : grid16.Coords) (t : Fin k16_t1_loop.trips) (h : valid L (2 * t.val)) : k16_off5 L t = ![pos L (2 * t.val)] :=
  (k16_off5_eq L t).trans (off1' (by rw [pos_valid h]; omega))
omit [FloatOps F] in
theorem off_10 (L : grid16.Coords) (t : Fin k16_t1_loop.trips) (h : valid L (2 * t.val + 1)) : k16_off10 L t = ![pos L (2 * t.val + 1)] :=
  (k16_off10_eq L t).trans (off1' (by rw [pos_valid h]; omega))

/-- Holding a 1 × 3200 window of the transposed argument, or a 3200 window of the result, by exactly its elements
    says the same whichever way the window's offsets are spelt. -/
theorem in_congr {off off' : Fin 2 → ℕ} (h : off = off') (p : ∀ a, off a + S1x3200.size a ≤ S22x1600000.size a)
    (p' : ∀ a, off' a + S1x3200.size a ≤ S22x1600000.size a) (f : Buf (Elt F) ((xtW).view.loc (thr d L))) :
    (((xtW).slice (Rect.unit (s := S22x1600000) off S1x3200.size p) (fun _ => rfl)).view.loc (thr d L)
        ↦[((xtW).slice (Rect.unit (s := S22x1600000) off S1x3200.size p) (fun _ => rfl)).view.set]{fullShare} f : sProp 𝕄)
      = (((xtW).slice (Rect.unit (s := S22x1600000) off' S1x3200.size p') (fun _ => rfl)).view.loc (thr d L)
        ↦[((xtW).slice (Rect.unit (s := S22x1600000) off' S1x3200.size p') (fun _ => rfl)).view.set]{fullShare} f) := by
  subst h; rfl
theorem out_congr {off off' : Fin 1 → ℕ} (h : off = off') (p : ∀ a, off a + S3200.size a ≤ S1600000.size a)
    (p' : ∀ a, off' a + S3200.size a ≤ S1600000.size a) (f : Buf (Elt F) ((oW).view.loc (thr d L))) :
    (((oW).slice (Rect.unit (s := S1600000) off S3200.size p) (fun _ => rfl)).view.loc (thr d L)
        ↦[((oW).slice (Rect.unit (s := S1600000) off S3200.size p) (fun _ => rfl)).view.set]{fullShare} f : sProp 𝕄)
      = (((oW).slice (Rect.unit (s := S1600000) off' S3200.size p') (fun _ => rfl)).view.loc (thr d L)
        ↦[((oW).slice (Rect.unit (s := S1600000) off' S3200.size p') (fun _ => rfl)).view.set]{fullShare} f) := by
  subst h; rfl

/-! The printed conditions, as facts about the trip and the tile. -/

omit [FloatOps F] in
theorem trips1 : k16_t1_loop.trips = 8 := by decide
omit [FloatOps F] in
theorem cond1_iff : ∀ (t : Fin k16_t1_loop.trips), k16_cond1 t = 1#1 ↔ 1 ≤ t.val := by decide +kernel
omit [FloatOps F] in
theorem cond2_iff : ∀ (L : grid16.Coords) (t : Fin k16_t1_loop.trips), k16_cond2 L t = 1#1 := by decide +kernel
omit [FloatOps F] in
theorem cond3_iff : ∀ (L : grid16.Coords) (t : Fin k16_t1_loop.trips), k16_cond3 L t = 1#1 ↔ t.val ≤ 6 := by decide +kernel
omit [FloatOps F] in
theorem cond4_iff : ∀ (t : Fin k16_t1_loop.trips), k16_cond4 t = 1#1 ↔ 1 ≤ t.val := by decide +kernel
omit [FloatOps F] in
theorem cond5_iff : ∀ (L : grid16.Coords) (t : Fin k16_t1_loop.trips), k16_cond5 L t = 1#1 ↔ (t.val ≤ 6 ∨ big L) := by decide +kernel
omit [FloatOps F] in
theorem cond6_iff : ∀ (L : grid16.Coords) (t : Fin k16_t1_loop.trips), k16_cond6 L t = 1#1 ↔ (t.val ≤ 5 ∨ (t.val = 6 ∧ big L)) := by decide +kernel
omit [FloatOps F] in
theorem cond7_iff : ∀ (L : grid16.Coords), k16_cond7 L = 1#1 := by decide +kernel
omit [FloatOps F] in
theorem cond8_iff : ∀ (L : grid16.Coords), k16_cond8 L = 1#1 ↔ big L := by decide +kernel

variable (O : CellTallies nD τ sig (HIx 22)) (W : Waits sig (HIx 22))
variable (fx : Buf (Elt F) ((xtW).view.loc (thr d L)))

abbrev NN : ℕ := 102400

/-- The 3200-element window of a flat staging buffer that a piece is written out from. -/
abbrev stg (a : Memref sig .scVector .vmem S25600 .f32) : Memref sig .scVector .vmem S3200 .f32 :=
  a.slice (Rect.unit (s := S25600) ![0] S3200.size inb_S25600_S3200_0) (fun _ => rfl)

/-- Piece `n` of the argument row held by exactly its elements, at the argument's contents; piece `n` of the result
    held by exactly its elements, at some contents. -/
abbrev xtPiece (n : ℕ) : sProp 𝕄 := (inM L n).view.loc (thr d L) ↦[(inM L n).view.set]{fullShare} fx
abbrev oPiece (n : ℕ) : sProp 𝕄 := iprop(∃ f, (outM L n).view.loc (thr d L) ↦[(outM L n).view.set]{fullShare} f)

/-- The lane-copy loop of a slot: the staging row keeps its contents, the flat staging buffer holds some contents. -/
def laneInv0 (g4 : Buf (Elt F) ((a4).view.loc (thr d L))) (_ : ℕ) (_ : PUnit) : sProp 𝕄 :=
  iprop(((a4).view.loc (thr d L) ↦{fullShare} g4) ∗ (∃ g, (a6).view.loc (thr d L) ↦{fullShare} g))
def laneInv1 (g5 : Buf (Elt F) ((a5).view.loc (thr d L))) (_ : ℕ) (_ : PUnit) : sProp 𝕄 :=
  iprop(((a5).view.loc (thr d L) ↦{fullShare} g5) ∗ (∃ g, (a7).view.loc (thr d L) ↦{fullShare} g))

/-- A fetch slot before trip work on piece `n`: the piece's fetch in flight (it will hand back the staging row at some
    contents, and the piece), or, when there is no such piece, the slot idle. -/
def inSlot (a : Memref sig .scVector .vmem S8x3200 .f32) (sm : DmaSem sig) (n : ℕ) : sProp 𝕄 :=
  if valid L n then
    iprop(∃ g, Transfers.Flight countersEmb (thr d L) (SemLoc.dma sm) (default : HIx 22) NN
      iprop((a.view.loc (thr d L) ↦{fullShare} g) ∗ xtPiece d L fx n))
  else iprop((∃ g, a.view.loc (thr d L) ↦{fullShare} g) ∗ semVal (thr d L, SemLoc.dma sm) 0)

/-- A write-out slot before trip work on piece `m`: piece `m - 2`'s write-out in flight (it will hand back that piece
    of the result at some contents, and the staging window), the rest of the staging buffer beside it; or idle. -/
def outSlot (a : Memref sig .scVector .vmem S25600 .f32) (sm : DmaSem sig) (m : ℕ) : sProp 𝕄 :=
  if 2 ≤ m ∧ valid L (m - 2) then
    iprop(∃ g, Transfers.Flight countersEmb (thr d L) (SemLoc.dma sm) (default : HIx 22) NN
        iprop(oPiece d L (m - 2) ∗ ((stg a).view.loc (thr d L) ↦[(stg a).view.set]{fullShare} g))
      ∗ (a.view.loc (thr d L) ↦[Finset.univ \ (stg a).view.set]{fullShare} g))
  else iprop((∃ g, a.view.loc (thr d L) ↦{fullShare} g) ∗ semVal (thr d L, SemLoc.dma sm) 0)

/-- Piece `n` when it exists, nothing otherwise. -/
def xP (n : ℕ) : sProp 𝕄 := if valid L n then xtPiece d L fx n else iprop(emp)
def oP (n : ℕ) : sProp 𝕄 := if valid L n then oPiece d L n else iprop(emp)

/-- What the tile holds outside the slots before trip `t`: every piece of the argument row but those being fetched
    (`2t`, `2t + 1`), every piece of the result but those being written out (`2t - 2`, `2t - 1`). -/
def xSet (t : ℕ) : Finset ℕ := (Finset.range 18).filter fun n => n ≠ 2 * t ∧ n ≠ 2 * t + 1
def oSet (t : ℕ) : Finset ℕ := (Finset.range 18).filter fun n => n + 2 ≠ 2 * t ∧ n + 2 ≠ 2 * t + 1

def inv (t : ℕ) (_ : PUnit) : sProp 𝕄 :=
  iprop(Transfers.MayWaits (thr d L) (none : HIx 22) O
    ∗ (∃ W', ⌜∀ p ∈ W', p ∈ W ∨ p.2 = none⌝ ∗ owes (thr d L) O W')
    ∗ bigSep (xSet t) (xP d L fx) ∗ bigSep (oSet t) (oP d L)
    ∗ inSlot d L fx a4 cc16_scratch4.sem (2 * t) ∗ outSlot d L a6 cc16_scratch6.sem (2 * t)
    ∗ inSlot d L fx a5 cc16_scratch5.sem (2 * t + 1) ∗ outSlot d L a7 cc16_scratch7.sem (2 * t + 1))

omit [FloatOps F] in
theorem two_out {Φ : ℕ → sProp 𝕄} {s : Finset ℕ} {a b : ℕ} (ha : a ∈ s) (hb : b ∈ s) (hab : a ≠ b) :
    bigSep s Φ = iprop(Φ a ∗ Φ b ∗ bigSep ((s.erase a).erase b) Φ) := by
  rw [SparseCore.bigSep_erase' ha, SparseCore.bigSep_erase' (Finset.mem_erase.mpr ⟨fun e => hab e.symm, hb⟩)]

omit [FloatOps F] in
theorem range18_split : (Finset.range 18) = insert 0 (insert 1 (xSet 0)) := by decide

theorem xRange_split (v0 : valid L 0) (v1 : valid L 1) :
    bigSep (Finset.range 18) (xP d L fx) = iprop(xtPiece d L fx 0 ∗ xtPiece d L fx 1 ∗ bigSep (xSet 0) (xP d L fx)) := by
  rw [range18_split, SparseCore.bigSep_insert' (by decide), SparseCore.bigSep_insert' (by decide)]
  unfold xP; rw [if_pos v0, if_pos v1]
omit [FloatOps F] in
theorem oSet_zero : oSet 0 = Finset.range 18 := by decide

theorem inSlot_pos {a : Memref sig .scVector .vmem S8x3200 .f32} {sm : DmaSem sig} {n : ℕ} (v : valid L n) :
    inSlot d L fx a sm n = iprop(∃ g, Transfers.Flight countersEmb (thr d L) (SemLoc.dma sm) (default : HIx 22) NN
      iprop((a.view.loc (thr d L) ↦{fullShare} g) ∗ xtPiece d L fx n)) := by unfold inSlot; rw [if_pos v]
theorem inSlot_neg {a : Memref sig .scVector .vmem S8x3200 .f32} {sm : DmaSem sig} {n : ℕ} (v : ¬ valid L n) :
    inSlot d L fx a sm n = iprop((∃ g, a.view.loc (thr d L) ↦{fullShare} g) ∗ semVal (thr d L, SemLoc.dma sm) 0) := by
  unfold inSlot; rw [if_neg v]
theorem outSlot_pos {a : Memref sig .scVector .vmem S25600 .f32} {sm : DmaSem sig} {m : ℕ} (h : 2 ≤ m ∧ valid L (m - 2)) :
    outSlot (F := F) d L a sm m = iprop(∃ g, Transfers.Flight countersEmb (thr d L) (SemLoc.dma sm) (default : HIx 22) NN
        iprop(oPiece (F := F) d L (m - 2) ∗ ((stg a).view.loc (thr d L) ↦[(stg a).view.set]{fullShare} g))
      ∗ (a.view.loc (thr d L) ↦[Finset.univ \ (stg a).view.set]{fullShare} g)) := by unfold outSlot; rw [if_pos h]
theorem outSlot_neg {a : Memref sig .scVector .vmem S25600 .f32} {sm : DmaSem sig} {m : ℕ} (h : ¬ (2 ≤ m ∧ valid L (m - 2))) :
    outSlot (F := F) d L a sm m = iprop((∃ g, a.view.loc (thr d L) ↦{fullShare} g) ∗ semVal (thr d L, SemLoc.dma sm) 0) := by
  unfold outSlot; rw [if_neg h]

/-- A fetch in flight, its source window spelt by any offsets equal to piece `n`'s, fills the fetch slot for `n`. -/
theorem fl_in {off : Fin 2 → ℕ} {n : ℕ} (h : off = ![16, pos L n]) (p : ∀ a, off a + S1x3200.size a ≤ S22x1600000.size a) (v : valid L n)
    (a : Memref sig .scVector .vmem S8x3200 .f32) (sm : DmaSem sig) :
    (iprop(∃ g, Transfers.Flight countersEmb (thr d L) (SemLoc.dma sm) (default : HIx 22) NN
        iprop((a.view.loc (thr d L) ↦{fullShare} g)
          ∗ (((xtW).slice (Rect.unit (s := S22x1600000) off S1x3200.size p) (fun _ => rfl)).view.loc (thr d L)
              ↦[((xtW).slice (Rect.unit (s := S22x1600000) off S1x3200.size p) (fun _ => rfl)).view.set]{fullShare} fx))) : sProp 𝕄)
      ⊢ inSlot d L fx a sm n := by
  rw [inSlot_pos d L fx v]
  iintro ⟨%g, H⟩
  have hD : (iprop((a.view.loc (thr d L) ↦{fullShare} g)
          ∗ (((xtW).slice (Rect.unit (s := S22x1600000) off S1x3200.size p) (fun _ => rfl)).view.loc (thr d L)
              ↦[((xtW).slice (Rect.unit (s := S22x1600000) off S1x3200.size p) (fun _ => rfl)).view.set]{fullShare} fx)) : sProp 𝕄)
      ⊢ iprop((a.view.loc (thr d L) ↦{fullShare} g) ∗ xtPiece d L fx n) := by
    iintro ⟨H1, H2⟩
    isplitl [H1]; · iexact H1
    iapply (Entails.of_eq (in_congr d L h p (in_inb L n) fx)); iexact H2
  iexists g
  iapply (Transfers.Flight_mono countersEmb (thr d L) hD); iexact H

/-- A write-out in flight, its destination window spelt by any offsets equal to piece `n`'s, with the rest of the
    staging buffer, fills the write-out slot for `n + 2`. -/
theorem fl_out {off : Fin 1 → ℕ} {n : ℕ} (h : off = ![pos L n]) (p : ∀ a, off a + S3200.size a ≤ S1600000.size a) (v : valid L n)
    (a : Memref sig .scVector .vmem S25600 .f32) (sm : DmaSem sig) :
    (iprop(∃ (f : Buf (Elt F) ((oW).view.loc (thr d L))) (g : Buf (Elt F) (a.view.loc (thr d L))), Transfers.Flight countersEmb (thr d L) (SemLoc.dma sm) (default : HIx 22) NN
        iprop((((oW).slice (Rect.unit (s := S1600000) off S3200.size p) (fun _ => rfl)).view.loc (thr d L)
              ↦[((oW).slice (Rect.unit (s := S1600000) off S3200.size p) (fun _ => rfl)).view.set]{fullShare} f)
          ∗ ((stg a).view.loc (thr d L) ↦[(stg a).view.set]{fullShare} g))
        ∗ (a.view.loc (thr d L) ↦[Finset.univ \ (stg a).view.set]{fullShare} g)) : sProp 𝕄)
      ⊢ outSlot (F := F) d L a sm (n + 2) := by
  rw [outSlot_pos (F := F) d L (m := n + 2) ⟨by omega, by simpa using v⟩]
  iintro ⟨%f, %g, H, R⟩
  have hD : (iprop((((oW).slice (Rect.unit (s := S1600000) off S3200.size p) (fun _ => rfl)).view.loc (thr d L)
              ↦[((oW).slice (Rect.unit (s := S1600000) off S3200.size p) (fun _ => rfl)).view.set]{fullShare} f)
          ∗ ((stg a).view.loc (thr d L) ↦[(stg a).view.set]{fullShare} g)) : sProp 𝕄)
      ⊢ iprop(oPiece (F := F) d L (n + 2 - 2) ∗ ((stg a).view.loc (thr d L) ↦[(stg a).view.set]{fullShare} g)) := by
    rw [Nat.add_sub_cancel]
    iintro ⟨H1, H2⟩
    isplitl [H1]
    · iexists f; iapply (Entails.of_eq (out_congr d L h p (out_inb L n) f)); iexact H1
    · iexact H2
  iexists g
  isplitl [H]
  · iapply (Transfers.Flight_mono countersEmb (thr d L) hD); iexact H
  · iexact R

/-! The pieces outside the slots, from one trip to the next. -/
def xCore (k : ℕ) : Finset ℕ := (Finset.range 18).filter fun n => n ≠ 2 * k ∧ n ≠ 2 * k + 1 ∧ n ≠ 2 * k + 2 ∧ n ≠ 2 * k + 3
def oCore (k : ℕ) : Finset ℕ := (Finset.range 18).filter fun n => n + 2 ≠ 2 * k ∧ n + 2 ≠ 2 * k + 1 ∧ n ≠ 2 * k ∧ n ≠ 2 * k + 1

omit [FloatOps F] in
theorem xSet_out (Φ : ℕ → sProp 𝕄) (k : ℕ) (hk : k < 8) : bigSep (xSet k) Φ = iprop(Φ (2 * k + 2) ∗ Φ (2 * k + 3) ∗ bigSep (xCore k) Φ) := by
  have e : ((xSet k).erase (2 * k + 2)).erase (2 * k + 3) = xCore k := by
    ext n; simp only [xSet, xCore, Finset.mem_erase, Finset.mem_filter, Finset.mem_range]; omega
  rw [← e]; exact two_out (by simp only [xSet, Finset.mem_filter, Finset.mem_range]; omega) (by simp only [xSet, Finset.mem_filter, Finset.mem_range]; omega) (by omega)
omit [FloatOps F] in
theorem xSet_in (Φ : ℕ → sProp 𝕄) (k : ℕ) (hk : k < 8) : bigSep (xSet (k + 1)) Φ = iprop(Φ (2 * k) ∗ Φ (2 * k + 1) ∗ bigSep (xCore k) Φ) := by
  have e : ((xSet (k + 1)).erase (2 * k)).erase (2 * k + 1) = xCore k := by
    ext n; simp only [xSet, xCore, Finset.mem_erase, Finset.mem_filter, Finset.mem_range]; omega
  rw [← e]; exact two_out (by simp only [xSet, Finset.mem_filter, Finset.mem_range]; omega) (by simp only [xSet, Finset.mem_filter, Finset.mem_range]; omega) (by omega)
omit [FloatOps F] in
theorem oSet_out (Φ : ℕ → sProp 𝕄) (k : ℕ) (hk : k < 8) : bigSep (oSet k) Φ = iprop(Φ (2 * k) ∗ Φ (2 * k + 1) ∗ bigSep (oCore k) Φ) := by
  have e : ((oSet k).erase (2 * k)).erase (2 * k + 1) = oCore k := by
    ext n; simp only [oSet, oCore, Finset.mem_erase, Finset.mem_filter, Finset.mem_range]; omega
  rw [← e]; exact two_out (by simp only [oSet, Finset.mem_filter, Finset.mem_range]; omega) (by simp only [oSet, Finset.mem_filter, Finset.mem_range]; omega) (by omega)
omit [FloatOps F] in
theorem oSet_in (Φ : ℕ → sProp 𝕄) (k : ℕ) (hk : k < 8) (hk1 : 1 ≤ k) :
    bigSep (oSet (k + 1)) Φ = iprop(Φ (2 * k - 2) ∗ Φ (2 * k - 1) ∗ bigSep (oCore k) Φ) := by
  have e : ((oSet (k + 1)).erase (2 * k - 2)).erase (2 * k - 1) = oCore k := by
    ext n; simp only [oSet, oCore, Finset.mem_erase, Finset.mem_filter, Finset.mem_range]; omega
  rw [← e]; exact two_out (by simp only [oSet, Finset.mem_filter, Finset.mem_range]; omega) (by simp only [oSet, Finset.mem_filter, Finset.mem_range]; omega) (by omega)

theorem xP_pos {n : ℕ} (v : valid L n) : xP d L fx n = xtPiece d L fx n := if_pos v
theorem oP_pos {n : ℕ} (v : valid L n) : oP (F := F) d L n = oPiece (F := F) d L n := if_pos v
theorem xP_neg {n : ℕ} (v : ¬ valid L n) : xP d L fx n = iprop(emp) := if_neg v
theorem oP_neg {n : ℕ} (v : ¬ valid L n) : oP (F := F) d L n = iprop(emp) := if_neg v

/-- Piece `n` of the result at its final contents: row 16 of the transposed argument. -/
def oQ (n : ℕ) : sProp 𝕄 :=
  if valid L n then (outM L n).view.loc (thr d L) ↦[(outM L n).view.set]{fullShare} (Cert.Spec.row 16 fx) else iprop(emp)

/-- What a tile is handed for the call: its pieces of row 16 of the transposed argument, at the argument's contents, and
    its pieces of the result at some contents. What it hands back: the same pieces of the argument, and its pieces of
    the result holding the row. -/
def goRes : sProp 𝕄 := iprop(bigSep (Finset.range 18) (xP d L fx) ∗ bigSep (Finset.range 18) (oP (F := F) d L))
def tdRes : sProp 𝕄 := iprop(bigSep (Finset.range 18) (xP d L fx) ∗ bigSep (Finset.range 18) (oQ d L fx))

end Tile

end Cert.Proof.TileB16

end
-- ==== Proof.TileB17Defs.lean ====
/-
  One vector subcore's task of copy kernel 17 (counting from 0): definitions. The task moves its pieces of row 17 of the
  transposed argument (pieces of 3200 consecutive elements, piece number 2·s + c + 32·n for the subcore (c, s) and
  n = 0, 1, … while that number is below 500) into the flat result: each piece is fetched into a staging row, copied
  16 lanes at a time into a flat staging buffer, and written out, two pieces in flight at a time. Here: the pieces as
  memrefs, the program's own spellings of them, the printed conditions as facts about the trip, the two slots' states
  between trips, and what the tile holds outside the slots.
-/
import proofs.«206869_g37898791420194_cont_8to1_b_558_20_alg».proof.Defs
import Idealize.ShloMosaic.Lib.SparseCore.Launch
import Idealize.ShloMosaic.Lib.StableHlo.Run
import Idealize.ShloMosaic.Lib.Pipeline.Kit
import Idealize.ShloMosaic.Lib.Tactic
import proofs.«206869_g37898791420194_cont_8to1_b_558_20_alg».proof.Proof.Gen.Kernel
import proofs.«206869_g37898791420194_cont_8to1_b_558_20_alg».proof.Proof.Gen.Kernel.Skeleton
import proofs.«206869_g37898791420194_cont_8to1_b_558_20_alg».proof.Proof.Spec

noncomputable section

namespace Cert.Proof.TileB17

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

abbrev ΛP : Labels := Pipeline.Sig Λ₀ (Fin 0) fun p => (pcfgs (F := F) p).Adm
abbrev K : SparseCore.Cfg τ sig (ΛP (F := F)) 22 := sc (F := F)
abbrev 𝒱₀ : Variants := Variants.none

abbrev UH : Type := URounds (GSem nD τ sig) ℕ
abbrev UU : Type := UH × Counters

local notation "𝕄" => MT nD τ sig (HIx 22) (Elt F) ℕ UU ℕ

local notation "xtW" => (Memref.whole Cert.Kernel.main_v0_scv : Memref Cert.Kernel.sig Kind.scVector Space.hbm Cert.Kernel.S22x1600000 EltTy.f32)
local notation "oW" => (Memref.whole Cert.Kernel.main_v18_scv : Memref Cert.Kernel.sig Kind.scVector Space.hbm Cert.Kernel.S1600000 EltTy.f32)
local notation "a4" => (Memref.whole Cert.Kernel.cc17_scratch0 : Memref Cert.Kernel.sig Kind.scVector Space.vmem Cert.Kernel.S8x3200 EltTy.f32)
local notation "a5" => (Memref.whole Cert.Kernel.cc17_scratch1 : Memref Cert.Kernel.sig Kind.scVector Space.vmem Cert.Kernel.S8x3200 EltTy.f32)
local notation "a6" => (Memref.whole Cert.Kernel.cc17_scratch2 : Memref Cert.Kernel.sig Kind.scVector Space.vmem Cert.Kernel.S25600 EltTy.f32)
local notation "a7" => (Memref.whole Cert.Kernel.cc17_scratch3 : Memref Cert.Kernel.sig Kind.scVector Space.vmem Cert.Kernel.S25600 EltTy.f32)

variable [FloatOps F]

section Tile

variable (d : Dev nD) (L : grid17.Coords)

abbrev cV (L : grid17.Coords) : Fin τ.nSC := (L 0).castLE hcore17
abbrev jV (L : grid17.Coords) : Fin τ.nSub := (L 1).castLE hsub17
abbrev thr (d : Dev nD) (L : grid17.Coords) : Thread nD τ := V d (cV L) (jV L)

/-- The tile's number 2·s + c, and whether it has sixteen pieces (numbers below 20) or fifteen. -/
abbrev wid (L : grid17.Coords) : ℕ := 2 * (L 1).val + (L 0).val
abbrev big (L : grid17.Coords) : Prop := wid L < 20

omit [FloatOps F] in
theorem wid_lt (L : grid17.Coords) : wid L < 32 := by
  have h0 : (L 0).val < 2 := (L 0).isLt
  have h1 : (L 1).val < 16 := (L 1).isLt
  unfold wid; omega

/-- Piece `n` of the tile exists: `n < 15`, or `n = 15` on a tile with sixteen pieces. It is the piece number
    `wid + 32·n < 500` of the row. -/
def valid (L : grid17.Coords) (n : ℕ) : Prop := n < 15 ∨ (n = 15 ∧ big L)
instance (L : grid17.Coords) (n : ℕ) : Decidable (valid L n) := by unfold valid big; infer_instance

omit [FloatOps F] in
theorem valid_iff (L : grid17.Coords) (n : ℕ) : valid L n ↔ wid L + 32 * n < 500 := by
  have := wid_lt L; unfold valid big; omega

/-- Where piece `n` starts in the row (clamped to the last piece of the row, so that the rectangle is in bounds for
    every `n`; for a valid piece the clamp is idle). -/
abbrev pos (L : grid17.Coords) (n : ℕ) : ℕ := 3200 * min (wid L + 32 * n) 499

omit [FloatOps F] in
theorem pos_valid {L : grid17.Coords} {n : ℕ} (h : valid L n) : pos L n = 6400 * (L 1).val + 3200 * (L 0).val + 102400 * n := by
  have := (valid_iff L n).mp h; unfold pos wid at *; omega

omit [FloatOps F] in
theorem in_inb (L : grid17.Coords) (n : ℕ) : ∀ a, (![17, pos L n] : Fin 2 → ℕ) a + S1x3200.size a ≤ S22x1600000.size a := by
  intro a; fin_cases a
  · show 17 + 1 ≤ 22; omega
  · show pos L n + 3200 ≤ 1600000; unfold pos; omega
omit [FloatOps F] in
theorem out_inb (L : grid17.Coords) (n : ℕ) : ∀ a, (![pos L n] : Fin 1 → ℕ) a + S3200.size a ≤ S1600000.size a := by
  intro a; fin_cases a
  show pos L n + 3200 ≤ 1600000; unfold pos; omega

/-- Piece `n` of row 17 of the transposed argument, and piece `n` of the flat result, as memrefs of the tile. -/
abbrev inM (L : grid17.Coords) (n : ℕ) : Memref sig .scVector .hbm S1x3200 .f32 :=
  (xtW).slice (Rect.unit (s := S22x1600000) ![17, pos L n] S1x3200.size (in_inb L n)) (fun _ => rfl)
abbrev outM (L : grid17.Coords) (n : ℕ) : Memref sig .scVector .hbm S3200 .f32 :=
  (oW).slice (Rect.unit (s := S1600000) ![pos L n] S3200.size (out_inb L n)) (fun _ => rfl)

/-! The program's own slices are these pieces: by the closed forms of its offset functions. -/

omit [FloatOps F] in
theorem off2 {a b : ℕ} (h : a = b) : (![17, a] : Fin 2 → ℕ) = ![17, b] := by rw [h]
omit [FloatOps F] in
theorem off1' {a b : ℕ} (h : a = b) : (![a] : Fin 1 → ℕ) = ![b] := by rw [h]

omit [FloatOps F] in
theorem off_in0 (L : grid17.Coords) (h : valid L 0) : k17_off1 L 0#32 = ![17, pos L 0] :=
  (k17_off1_eq L 0).trans (off2 (by rw [pos_valid h]; simp))
omit [FloatOps F] in
theorem off_in1 (L : grid17.Coords) (h : valid L 1) : k17_off1 L 32#32 = ![17, pos L 1] :=
  (k17_off1_eq L 1).trans (off2 (by rw [pos_valid h]; simp))
omit [FloatOps F] in
theorem off_6 (L : grid17.Coords) (t : Fin k17_t1_loop.trips) (h : valid L (2 * t.val + 2)) : k17_off6 L t = ![17, pos L (2 * t.val + 2)] :=
  (k17_off6_eq L t).trans (off2 (by rw [pos_valid h]; omega))
omit [FloatOps F] in
theorem off_11 (L : grid17.Coords) (t : Fin k17_t1_loop.trips) (h : valid L (2 * t.val + 3)) : k17_off11 L t = ![17, pos L (2 * t.val + 3)] :=
  (k17_off11_eq L t).trans (off2 (by rw [pos_valid h]; omega))
omit [FloatOps F] in
theorem off_5 (L : grid17.Coords) (t : Fin k17_t1_loop.trips) (h : valid L (2 * t.val)) : k17_off5 L t = ![pos L (2 * t.val)] :=
  (k17_off5_eq L t).trans (off1' (by rw [pos_valid h]; omega))
omit [FloatOps F] in
theorem off_10 (L : grid17.Coords) (t : Fin k17_t1_loop.trips) (h : valid L (2 * t.val + 1)) : k17_off10 L t = ![pos L (2 * t.val + 1)] :=
  (k17_off10_eq L t).trans (off1' (by rw [pos_valid h]; omega))

/-- Holding a 1 × 3200 window of the transposed argument, or a 3200 window of the result, by exactly its elements
    says the same whichever way the window's offsets are spelt. -/
theorem in_congr {off off' : Fin 2 → ℕ} (h : off = off') (p : ∀ a, off a + S1x3200.size a ≤ S22x1600000.size a)
    (p' : ∀ a, off' a + S1x3200.size a ≤ S22x1600000.size a) (f : Buf (Elt F) ((xtW).view.loc (thr d L))) :
    (((xtW).slice (Rect.unit (s := S22x1600000) off S1x3200.size p) (fun _ => rfl)).view.loc (thr d L)
        ↦[((xtW).slice (Rect.unit (s := S22x1600000) off S1x3200.size p) (fun _ => rfl)).view.set]{fullShare} f : sProp 𝕄)
      = (((xtW).slice (Rect.unit (s := S22x1600000) off' S1x3200.size p') (fun _ => rfl)).view.loc (thr d L)
        ↦[((xtW).slice (Rect.unit (s := S22x1600000) off' S1x3200.size p') (fun _ => rfl)).view.set]{fullShare} f) := by
  subst h; rfl
theorem out_congr {off off' : Fin 1 → ℕ} (h : off = off') (p : ∀ a, off a + S3200.size a ≤ S1600000.size a)
    (p' : ∀ a, off' a + S3200.size a ≤ S1600000.size a) (f : Buf (Elt F) ((oW).view.loc (thr d L))) :
    (((oW).slice (Rect.unit (s := S1600000) off S3200.size p) (fun _ => rfl)).view.loc (thr d L)
        ↦[((oW).slice (Rect.unit (s := S1600000) off S3200.size p) (fun _ => rfl)).view.set]{fullShare} f : sProp 𝕄)
      = (((oW).slice (Rect.unit (s := S1600000) off' S3200.size p') (fun _ => rfl)).view.loc (thr d L)
        ↦[((oW).slice (Rect.unit (s := S1600000) off' S3200.size p') (fun _ => rfl)).view.set]{fullShare} f) := by
  subst h; rfl

/-! The printed conditions, as facts about the trip and the tile. -/

omit [FloatOps F] in
theorem trips1 : k17_t1_loop.trips = 8 := by decide
omit [FloatOps F] in
theorem cond1_iff : ∀ (t : Fin k17_t1_loop.trips), k17_cond1 t = 1#1 ↔ 1 ≤ t.val := by decide +kernel
omit [FloatOps F] in
theorem cond2_iff : ∀ (L : grid17.Coords) (t : Fin k17_t1_loop.trips), k17_cond2 L t = 1#1 := by decide +kernel
omit [FloatOps F] in
theorem cond3_iff : ∀ (L : grid17.Coords) (t : Fin k17_t1_loop.trips), k17_cond3 L t = 1#1 ↔ t.val ≤ 6 := by decide +kernel
omit [FloatOps F] in
theorem cond4_iff : ∀ (t : Fin k17_t1_loop.trips), k17_cond4 t = 1#1 ↔ 1 ≤ t.val := by decide +kernel
omit [FloatOps F] in
theorem cond5_iff : ∀ (L : grid17.Coords) (t : Fin k17_t1_loop.trips), k17_cond5 L t = 1#1 ↔ (t.val ≤ 6 ∨ big L) := by decide +kernel
omit [FloatOps F] in
theorem cond6_iff : ∀ (L : grid17.Coords) (t : Fin k17_t1_loop.trips), k17_cond6 L t = 1#1 ↔ (t.val ≤ 5 ∨ (t.val = 6 ∧ big L)) := by decide +kernel
omit [FloatOps F] in
theorem cond7_iff : ∀ (L : grid17.Coords), k17_cond7 L = 1#1 := by decide +kernel
omit [FloatOps F] in
theorem cond8_iff : ∀ (L : grid17.Coords), k17_cond8 L = 1#1 ↔ big L := by decide +kernel

variable (O : CellTallies nD τ sig (HIx 22)) (W : Waits sig (HIx 22))
variable (fx : Buf (Elt F) ((xtW).view.loc (thr d L)))

abbrev NN : ℕ := 102400

/-- The 3200-element window of a flat staging buffer that a piece is written out from. -/
abbrev stg (a : Memref sig .scVector .vmem S25600 .f32) : Memref sig .scVector .vmem S3200 .f32 :=
  a.slice (Rect.unit (s := S25600) ![0] S3200.size inb_S25600_S3200_0) (fun _ => rfl)

/-- Piece `n` of the argument row held by exactly its elements, at the argument's contents; piece `n` of the result
    held by exactly its elements, at some contents. -/
abbrev xtPiece (n : ℕ) : sProp 𝕄 := (inM L n).view.loc (thr d L) ↦[(inM L n).view.set]{fullShare} fx
abbrev oPiece (n : ℕ) : sProp 𝕄 := iprop(∃ f, (outM L n).view.loc (thr d L) ↦[(outM L n).view.set]{fullShare} f)

/-- The lane-copy loop of a slot: the staging row keeps its contents, the flat staging buffer holds some contents. -/
def laneInv0 (g4 : Buf (Elt F) ((a4).view.loc (thr d L))) (_ : ℕ) (_ : PUnit) : sProp 𝕄 :=
  iprop(((a4).view.loc (thr d L) ↦{fullShare} g4) ∗ (∃ g, (a6).view.loc (thr d L) ↦{fullShare} g))
def laneInv1 (g5 : Buf (Elt F) ((a5).view.loc (thr d L))) (_ : ℕ) (_ : PUnit) : sProp 𝕄 :=
  iprop(((a5).view.loc (thr d L) ↦{fullShare} g5) ∗ (∃ g, (a7).view.loc (thr d L) ↦{fullShare} g))

/-- A fetch slot before trip work on piece `n`: the piece's fetch in flight (it will hand back the staging row at some
    contents, and the piece), or, when there is no such piece, the slot idle. -/
def inSlot (a : Memref sig .scVector .vmem S8x3200 .f32) (sm : DmaSem sig) (n : ℕ) : sProp 𝕄 :=
  if valid L n then
    iprop(∃ g, Transfers.Flight countersEmb (thr d L) (SemLoc.dma sm) (default : HIx 22) NN
      iprop((a.view.loc (thr d L) ↦{fullShare} g) ∗ xtPiece d L fx n))
  else iprop((∃ g, a.view.loc (thr d L) ↦{fullShare} g) ∗ semVal (thr d L, SemLoc.dma sm) 0)

/-- A write-out slot before trip work on piece `m`: piece `m - 2`'s write-out in flight (it will hand back that piece
    of the result at some contents, and the staging window), the rest of the staging buffer beside it; or idle. -/
def outSlot (a : Memref sig .scVector .vmem S25600 .f32) (sm : DmaSem sig) (m : ℕ) : sProp 𝕄 :=
  if 2 ≤ m ∧ valid L (m - 2) then
    iprop(∃ g, Transfers.Flight countersEmb (thr d L) (SemLoc.dma sm) (default : HIx 22) NN
        iprop(oPiece d L (m - 2) ∗ ((stg a).view.loc (thr d L) ↦[(stg a).view.set]{fullShare} g))
      ∗ (a.view.loc (thr d L) ↦[Finset.univ \ (stg a).view.set]{fullShare} g))
  else iprop((∃ g, a.view.loc (thr d L) ↦{fullShare} g) ∗ semVal (thr d L, SemLoc.dma sm) 0)

/-- Piece `n` when it exists, nothing otherwise. -/
def xP (n : ℕ) : sProp 𝕄 := if valid L n then xtPiece d L fx n else iprop(emp)
def oP (n : ℕ) : sProp 𝕄 := if valid L n then oPiece d L n else iprop(emp)

/-- What the tile holds outside the slots before trip `t`: every piece of the argument row but those being fetched
    (`2t`, `2t + 1`), every piece of the result but those being written out (`2t - 2`, `2t - 1`). -/
def xSet (t : ℕ) : Finset ℕ := (Finset.range 18).filter fun n => n ≠ 2 * t ∧ n ≠ 2 * t + 1
def oSet (t : ℕ) : Finset ℕ := (Finset.range 18).filter fun n => n + 2 ≠ 2 * t ∧ n + 2 ≠ 2 * t + 1

def inv (t : ℕ) (_ : PUnit) : sProp 𝕄 :=
  iprop(Transfers.MayWaits (thr d L) (none : HIx 22) O
    ∗ (∃ W', ⌜∀ p ∈ W', p ∈ W ∨ p.2 = none⌝ ∗ owes (thr d L) O W')
    ∗ bigSep (xSet t) (xP d L fx) ∗ bigSep (oSet t) (oP d L)
    ∗ inSlot d L fx a4 cc17_scratch4.sem (2 * t) ∗ outSlot d L a6 cc17_scratch6.sem (2 * t)
    ∗ inSlot d L fx a5 cc17_scratch5.sem (2 * t + 1) ∗ outSlot d L a7 cc17_scratch7.sem (2 * t + 1))

omit [FloatOps F] in
theorem two_out {Φ : ℕ → sProp 𝕄} {s : Finset ℕ} {a b : ℕ} (ha : a ∈ s) (hb : b ∈ s) (hab : a ≠ b) :
    bigSep s Φ = iprop(Φ a ∗ Φ b ∗ bigSep ((s.erase a).erase b) Φ) := by
  rw [SparseCore.bigSep_erase' ha, SparseCore.bigSep_erase' (Finset.mem_erase.mpr ⟨fun e => hab e.symm, hb⟩)]

omit [FloatOps F] in
theorem range18_split : (Finset.range 18) = insert 0 (insert 1 (xSet 0)) := by decide

theorem xRange_split (v0 : valid L 0) (v1 : valid L 1) :
    bigSep (Finset.range 18) (xP d L fx) = iprop(xtPiece d L fx 0 ∗ xtPiece d L fx 1 ∗ bigSep (xSet 0) (xP d L fx)) := by
  rw [range18_split, SparseCore.bigSep_insert' (by decide), SparseCore.bigSep_insert' (by decide)]
  unfold xP; rw [if_pos v0, if_pos v1]
omit [FloatOps F] in
theorem oSet_zero : oSet 0 = Finset.range 18 := by decide

theorem inSlot_pos {a : Memref sig .scVector .vmem S8x3200 .f32} {sm : DmaSem sig} {n : ℕ} (v : valid L n) :
    inSlot d L fx a sm n = iprop(∃ g, Transfers.Flight countersEmb (thr d L) (SemLoc.dma sm) (default : HIx 22) NN
      iprop((a.view.loc (thr d L) ↦{fullShare} g) ∗ xtPiece d L fx n)) := by unfold inSlot; rw [if_pos v]
theorem inSlot_neg {a : Memref sig .scVector .vmem S8x3200 .f32} {sm : DmaSem sig} {n : ℕ} (v : ¬ valid L n) :
    inSlot d L fx a sm n = iprop((∃ g, a.view.loc (thr d L) ↦{fullShare} g) ∗ semVal (thr d L, SemLoc.dma sm) 0) := by
  unfold inSlot; rw [if_neg v]
theorem outSlot_pos {a : Memref sig .scVector .vmem S25600 .f32} {sm : DmaSem sig} {m : ℕ} (h : 2 ≤ m ∧ valid L (m - 2)) :
    outSlot (F := F) d L a sm m = iprop(∃ g, Transfers.Flight countersEmb (thr d L) (SemLoc.dma sm) (default : HIx 22) NN
        iprop(oPiece (F := F) d L (m - 2) ∗ ((stg a).view.loc (thr d L) ↦[(stg a).view.set]{fullShare} g))
      ∗ (a.view.loc (thr d L) ↦[Finset.univ \ (stg a).view.set]{fullShare} g)) := by unfold outSlot; rw [if_pos h]
theorem outSlot_neg {a : Memref sig .scVector .vmem S25600 .f32} {sm : DmaSem sig} {m : ℕ} (h : ¬ (2 ≤ m ∧ valid L (m - 2))) :
    outSlot (F := F) d L a sm m = iprop((∃ g, a.view.loc (thr d L) ↦{fullShare} g) ∗ semVal (thr d L, SemLoc.dma sm) 0) := by
  unfold outSlot; rw [if_neg h]

/-- A fetch in flight, its source window spelt by any offsets equal to piece `n`'s, fills the fetch slot for `n`. -/
theorem fl_in {off : Fin 2 → ℕ} {n : ℕ} (h : off = ![17, pos L n]) (p : ∀ a, off a + S1x3200.size a ≤ S22x1600000.size a) (v : valid L n)
    (a : Memref sig .scVector .vmem S8x3200 .f32) (sm : DmaSem sig) :
    (iprop(∃ g, Transfers.Flight countersEmb (thr d L) (SemLoc.dma sm) (default : HIx 22) NN
        iprop((a.view.loc (thr d L) ↦{fullShare} g)
          ∗ (((xtW).slice (Rect.unit (s := S22x1600000) off S1x3200.size p) (fun _ => rfl)).view.loc (thr d L)
              ↦[((xtW).slice (Rect.unit (s := S22x1600000) off S1x3200.size p) (fun _ => rfl)).view.set]{fullShare} fx))) : sProp 𝕄)
      ⊢ inSlot d L fx a sm n := by
  rw [inSlot_pos d L fx v]
  iintro ⟨%g, H⟩
  have hD : (iprop((a.view.loc (thr d L) ↦{fullShare} g)
          ∗ (((xtW).slice (Rect.unit (s := S22x1600000) off S1x3200.size p) (fun _ => rfl)).view.loc (thr d L)
              ↦[((xtW).slice (Rect.unit (s := S22x1600000) off S1x3200.size p) (fun _ => rfl)).view.set]{fullShare} fx)) : sProp 𝕄)
      ⊢ iprop((a.view.loc (thr d L) ↦{fullShare} g) ∗ xtPiece d L fx n) := by
    iintro ⟨H1, H2⟩
    isplitl [H1]; · iexact H1
    iapply (Entails.of_eq (in_congr d L h p (in_inb L n) fx)); iexact H2
  iexists g
  iapply (Transfers.Flight_mono countersEmb (thr d L) hD); iexact H

/-- A write-out in flight, its destination window spelt by any offsets equal to piece `n`'s, with the rest of the
    staging buffer, fills the write-out slot for `n + 2`. -/
theorem fl_out {off : Fin 1 → ℕ} {n : ℕ} (h : off = ![pos L n]) (p : ∀ a, off a + S3200.size a ≤ S1600000.size a) (v : valid L n)
    (a : Memref sig .scVector .vmem S25600 .f32) (sm : DmaSem sig) :
    (iprop(∃ (f : Buf (Elt F) ((oW).view.loc (thr d L))) (g : Buf (Elt F) (a.view.loc (thr d L))), Transfers.Flight countersEmb (thr d L) (SemLoc.dma sm) (default : HIx 22) NN
        iprop((((oW).slice (Rect.unit (s := S1600000) off S3200.size p) (fun _ => rfl)).view.loc (thr d L)
              ↦[((oW).slice (Rect.unit (s := S1600000) off S3200.size p) (fun _ => rfl)).view.set]{fullShare} f)
          ∗ ((stg a).view.loc (thr d L) ↦[(stg a).view.set]{fullShare} g))
        ∗ (a.view.loc (thr d L) ↦[Finset.univ \ (stg a).view.set]{fullShare} g)) : sProp 𝕄)
      ⊢ outSlot (F := F) d L a sm (n + 2) := by
  rw [outSlot_pos (F := F) d L (m := n + 2) ⟨by omega, by simpa using v⟩]
  iintro ⟨%f, %g, H, R⟩
  have hD : (iprop((((oW).slice (Rect.unit (s := S1600000) off S3200.size p) (fun _ => rfl)).view.loc (thr d L)
              ↦[((oW).slice (Rect.unit (s := S1600000) off S3200.size p) (fun _ => rfl)).view.set]{fullShare} f)
          ∗ ((stg a).view.loc (thr d L) ↦[(stg a).view.set]{fullShare} g)) : sProp 𝕄)
      ⊢ iprop(oPiece (F := F) d L (n + 2 - 2) ∗ ((stg a).view.loc (thr d L) ↦[(stg a).view.set]{fullShare} g)) := by
    rw [Nat.add_sub_cancel]
    iintro ⟨H1, H2⟩
    isplitl [H1]
    · iexists f; iapply (Entails.of_eq (out_congr d L h p (out_inb L n) f)); iexact H1
    · iexact H2
  iexists g
  isplitl [H]
  · iapply (Transfers.Flight_mono countersEmb (thr d L) hD); iexact H
  · iexact R

/-! The pieces outside the slots, from one trip to the next. -/
def xCore (k : ℕ) : Finset ℕ := (Finset.range 18).filter fun n => n ≠ 2 * k ∧ n ≠ 2 * k + 1 ∧ n ≠ 2 * k + 2 ∧ n ≠ 2 * k + 3
def oCore (k : ℕ) : Finset ℕ := (Finset.range 18).filter fun n => n + 2 ≠ 2 * k ∧ n + 2 ≠ 2 * k + 1 ∧ n ≠ 2 * k ∧ n ≠ 2 * k + 1

omit [FloatOps F] in
theorem xSet_out (Φ : ℕ → sProp 𝕄) (k : ℕ) (hk : k < 8) : bigSep (xSet k) Φ = iprop(Φ (2 * k + 2) ∗ Φ (2 * k + 3) ∗ bigSep (xCore k) Φ) := by
  have e : ((xSet k).erase (2 * k + 2)).erase (2 * k + 3) = xCore k := by
    ext n; simp only [xSet, xCore, Finset.mem_erase, Finset.mem_filter, Finset.mem_range]; omega
  rw [← e]; exact two_out (by simp only [xSet, Finset.mem_filter, Finset.mem_range]; omega) (by simp only [xSet, Finset.mem_filter, Finset.mem_range]; omega) (by omega)
omit [FloatOps F] in
theorem xSet_in (Φ : ℕ → sProp 𝕄) (k : ℕ) (hk : k < 8) : bigSep (xSet (k + 1)) Φ = iprop(Φ (2 * k) ∗ Φ (2 * k + 1) ∗ bigSep (xCore k) Φ) := by
  have e : ((xSet (k + 1)).erase (2 * k)).erase (2 * k + 1) = xCore k := by
    ext n; simp only [xSet, xCore, Finset.mem_erase, Finset.mem_filter, Finset.mem_range]; omega
  rw [← e]; exact two_out (by simp only [xSet, Finset.mem_filter, Finset.mem_range]; omega) (by simp only [xSet, Finset.mem_filter, Finset.mem_range]; omega) (by omega)
omit [FloatOps F] in
theorem oSet_out (Φ : ℕ → sProp 𝕄) (k : ℕ) (hk : k < 8) : bigSep (oSet k) Φ = iprop(Φ (2 * k) ∗ Φ (2 * k + 1) ∗ bigSep (oCore k) Φ) := by
  have e : ((oSet k).erase (2 * k)).erase (2 * k + 1) = oCore k := by
    ext n; simp only [oSet, oCore, Finset.mem_erase, Finset.mem_filter, Finset.mem_range]; omega
  rw [← e]; exact two_out (by simp only [oSet, Finset.mem_filter, Finset.mem_range]; omega) (by simp only [oSet, Finset.mem_filter, Finset.mem_range]; omega) (by omega)
omit [FloatOps F] in
theorem oSet_in (Φ : ℕ → sProp 𝕄) (k : ℕ) (hk : k < 8) (hk1 : 1 ≤ k) :
    bigSep (oSet (k + 1)) Φ = iprop(Φ (2 * k - 2) ∗ Φ (2 * k - 1) ∗ bigSep (oCore k) Φ) := by
  have e : ((oSet (k + 1)).erase (2 * k - 2)).erase (2 * k - 1) = oCore k := by
    ext n; simp only [oSet, oCore, Finset.mem_erase, Finset.mem_filter, Finset.mem_range]; omega
  rw [← e]; exact two_out (by simp only [oSet, Finset.mem_filter, Finset.mem_range]; omega) (by simp only [oSet, Finset.mem_filter, Finset.mem_range]; omega) (by omega)

theorem xP_pos {n : ℕ} (v : valid L n) : xP d L fx n = xtPiece d L fx n := if_pos v
theorem oP_pos {n : ℕ} (v : valid L n) : oP (F := F) d L n = oPiece (F := F) d L n := if_pos v
theorem xP_neg {n : ℕ} (v : ¬ valid L n) : xP d L fx n = iprop(emp) := if_neg v
theorem oP_neg {n : ℕ} (v : ¬ valid L n) : oP (F := F) d L n = iprop(emp) := if_neg v

/-- Piece `n` of the result at its final contents: row 17 of the transposed argument. -/
def oQ (n : ℕ) : sProp 𝕄 :=
  if valid L n then (outM L n).view.loc (thr d L) ↦[(outM L n).view.set]{fullShare} (Cert.Spec.row 17 fx) else iprop(emp)

/-- What a tile is handed for the call: its pieces of row 17 of the transposed argument, at the argument's contents, and
    its pieces of the result at some contents. What it hands back: the same pieces of the argument, and its pieces of
    the result holding the row. -/
def goRes : sProp 𝕄 := iprop(bigSep (Finset.range 18) (xP d L fx) ∗ bigSep (Finset.range 18) (oP (F := F) d L))
def tdRes : sProp 𝕄 := iprop(bigSep (Finset.range 18) (xP d L fx) ∗ bigSep (Finset.range 18) (oQ d L fx))

end Tile

end Cert.Proof.TileB17

end
-- ==== Proof.TileB18Defs.lean ====
/-
  One vector subcore's task of copy kernel 18 (counting from 0): definitions. The task moves its pieces of row 18 of the
  transposed argument (pieces of 3200 consecutive elements, piece number 2·s + c + 32·n for the subcore (c, s) and
  n = 0, 1, … while that number is below 500) into the flat result: each piece is fetched into a staging row, copied
  16 lanes at a time into a flat staging buffer, and written out, two pieces in flight at a time. Here: the pieces as
  memrefs, the program's own spellings of them, the printed conditions as facts about the trip, the two slots' states
  between trips, and what the tile holds outside the slots.
-/
import proofs.«206869_g37898791420194_cont_8to1_b_558_20_alg».proof.Defs
import Idealize.ShloMosaic.Lib.SparseCore.Launch
import Idealize.ShloMosaic.Lib.StableHlo.Run
import Idealize.ShloMosaic.Lib.Pipeline.Kit
import Idealize.ShloMosaic.Lib.Tactic
import proofs.«206869_g37898791420194_cont_8to1_b_558_20_alg».proof.Proof.Gen.Kernel
import proofs.«206869_g37898791420194_cont_8to1_b_558_20_alg».proof.Proof.Gen.Kernel.Skeleton
import proofs.«206869_g37898791420194_cont_8to1_b_558_20_alg».proof.Proof.Spec

noncomputable section

namespace Cert.Proof.TileB18

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

abbrev ΛP : Labels := Pipeline.Sig Λ₀ (Fin 0) fun p => (pcfgs (F := F) p).Adm
abbrev K : SparseCore.Cfg τ sig (ΛP (F := F)) 22 := sc (F := F)
abbrev 𝒱₀ : Variants := Variants.none

abbrev UH : Type := URounds (GSem nD τ sig) ℕ
abbrev UU : Type := UH × Counters

local notation "𝕄" => MT nD τ sig (HIx 22) (Elt F) ℕ UU ℕ

local notation "xtW" => (Memref.whole Cert.Kernel.main_v0_scv : Memref Cert.Kernel.sig Kind.scVector Space.hbm Cert.Kernel.S22x1600000 EltTy.f32)
local notation "oW" => (Memref.whole Cert.Kernel.main_v19_scv : Memref Cert.Kernel.sig Kind.scVector Space.hbm Cert.Kernel.S1600000 EltTy.f32)
local notation "a4" => (Memref.whole Cert.Kernel.cc18_scratch0 : Memref Cert.Kernel.sig Kind.scVector Space.vmem Cert.Kernel.S8x3200 EltTy.f32)
local notation "a5" => (Memref.whole Cert.Kernel.cc18_scratch1 : Memref Cert.Kernel.sig Kind.scVector Space.vmem Cert.Kernel.S8x3200 EltTy.f32)
local notation "a6" => (Memref.whole Cert.Kernel.cc18_scratch2 : Memref Cert.Kernel.sig Kind.scVector Space.vmem Cert.Kernel.S25600 EltTy.f32)
local notation "a7" => (Memref.whole Cert.Kernel.cc18_scratch3 : Memref Cert.Kernel.sig Kind.scVector Space.vmem Cert.Kernel.S25600 EltTy.f32)

variable [FloatOps F]

section Tile

variable (d : Dev nD) (L : grid18.Coords)

abbrev cV (L : grid18.Coords) : Fin τ.nSC := (L 0).castLE hcore18
abbrev jV (L : grid18.Coords) : Fin τ.nSub := (L 1).castLE hsub18
abbrev thr (d : Dev nD) (L : grid18.Coords) : Thread nD τ := V d (cV L) (jV L)

/-- The tile's number 2·s + c, and whether it has sixteen pieces (numbers below 20) or fifteen. -/
abbrev wid (L : grid18.Coords) : ℕ := 2 * (L 1).val + (L 0).val
abbrev big (L : grid18.Coords) : Prop := wid L < 20

omit [FloatOps F] in
theorem wid_lt (L : grid18.Coords) : wid L < 32 := by
  have h0 : (L 0).val < 2 := (L 0).isLt
  have h1 : (L 1).val < 16 := (L 1).isLt
  unfold wid; omega

/-- Piece `n` of the tile exists: `n < 15`, or `n = 15` on a tile with sixteen pieces. It is the piece number
    `wid + 32·n < 500` of the row. -/
def valid (L : grid18.Coords) (n : ℕ) : Prop := n < 15 ∨ (n = 15 ∧ big L)
instance (L : grid18.Coords) (n : ℕ) : Decidable (valid L n) := by unfold valid big; infer_instance

omit [FloatOps F] in
theorem valid_iff (L : grid18.Coords) (n : ℕ) : valid L n ↔ wid L + 32 * n < 500 := by
  have := wid_lt L; unfold valid big; omega

/-- Where piece `n` starts in the row (clamped to the last piece of the row, so that the rectangle is in bounds for
    every `n`; for a valid piece the clamp is idle). -/
abbrev pos (L : grid18.Coords) (n : ℕ) : ℕ := 3200 * min (wid L + 32 * n) 499

omit [FloatOps F] in
theorem pos_valid {L : grid18.Coords} {n : ℕ} (h : valid L n) : pos L n = 6400 * (L 1).val + 3200 * (L 0).val + 102400 * n := by
  have := (valid_iff L n).mp h; unfold pos wid at *; omega

omit [FloatOps F] in
theorem in_inb (L : grid18.Coords) (n : ℕ) : ∀ a, (![18, pos L n] : Fin 2 → ℕ) a + S1x3200.size a ≤ S22x1600000.size a := by
  intro a; fin_cases a
  · show 18 + 1 ≤ 22; omega
  · show pos L n + 3200 ≤ 1600000; unfold pos; omega
omit [FloatOps F] in
theorem out_inb (L : grid18.Coords) (n : ℕ) : ∀ a, (![pos L n] : Fin 1 → ℕ) a + S3200.size a ≤ S1600000.size a := by
  intro a; fin_cases a
  show pos L n + 3200 ≤ 1600000; unfold pos; omega

/-- Piece `n` of row 18 of the transposed argument, and piece `n` of the flat result, as memrefs of the tile. -/
abbrev inM (L : grid18.Coords) (n : ℕ) : Memref sig .scVector .hbm S1x3200 .f32 :=
  (xtW).slice (Rect.unit (s := S22x1600000) ![18, pos L n] S1x3200.size (in_inb L n)) (fun _ => rfl)
abbrev outM (L : grid18.Coords) (n : ℕ) : Memref sig .scVector .hbm S3200 .f32 :=
  (oW).slice (Rect.unit (s := S1600000) ![pos L n] S3200.size (out_inb L n)) (fun _ => rfl)

/-! The program's own slices are these pieces: by the closed forms of its offset functions. -/

omit [FloatOps F] in
theorem off2 {a b : ℕ} (h : a = b) : (![18, a] : Fin 2 → ℕ) = ![18, b] := by rw [h]
omit [FloatOps F] in
theorem off1' {a b : ℕ} (h : a = b) : (![a] : Fin 1 → ℕ) = ![b] := by rw [h]

omit [FloatOps F] in
theorem off_in0 (L : grid18.Coords) (h : valid L 0) : k18_off1 L 0#32 = ![18, pos L 0] :=
  (k18_off1_eq L 0).trans (off2 (by rw [pos_valid h]; simp))
omit [FloatOps F] in
theorem off_in1 (L : grid18.Coords) (h : valid L 1) : k18_off1 L 32#32 = ![18, pos L 1] :=
  (k18_off1_eq L 1).trans (off2 (by rw [pos_valid h]; simp))
omit [FloatOps F] in
theorem off_6 (L : grid18.Coords) (t : Fin k18_t1_loop.trips) (h : valid L (2 * t.val + 2)) : k18_off6 L t = ![18, pos L (2 * t.val + 2)] :=
  (k18_off6_eq L t).trans (off2 (by rw [pos_valid h]; omega))
omit [FloatOps F] in
theorem off_11 (L : grid18.Coords) (t : Fin k18_t1_loop.trips) (h : valid L (2 * t.val + 3)) : k18_off11 L t = ![18, pos L (2 * t.val + 3)] :=
  (k18_off11_eq L t).trans (off2 (by rw [pos_valid h]; omega))
omit [FloatOps F] in
theorem off_5 (L : grid18.Coords) (t : Fin k18_t1_loop.trips) (h : valid L (2 * t.val)) : k18_off5 L t = ![pos L (2 * t.val)] :=
  (k18_off5_eq L t).trans (off1' (by rw [pos_valid h]; omega))
omit [FloatOps F] in
theorem off_10 (L : grid18.Coords) (t : Fin k18_t1_loop.trips) (h : valid L (2 * t.val + 1)) : k18_off10 L t = ![pos L (2 * t.val + 1)] :=
  (k18_off10_eq L t).trans (off1' (by rw [pos_valid h]; omega))

/-- Holding a 1 × 3200 window of the transposed argument, or a 3200 window of the result, by exactly its elements
    says the same whichever way the window's offsets are spelt. -/
theorem in_congr {off off' : Fin 2 → ℕ} (h : off = off') (p : ∀ a, off a + S1x3200.size a ≤ S22x1600000.size a)
    (p' : ∀ a, off' a + S1x3200.size a ≤ S22x1600000.size a) (f : Buf (Elt F) ((xtW).view.loc (thr d L))) :
    (((xtW).slice (Rect.unit (s := S22x1600000) off S1x3200.size p) (fun _ => rfl)).view.loc (thr d L)
        ↦[((xtW).slice (Rect.unit (s := S22x1600000) off S1x3200.size p) (fun _ => rfl)).view.set]{fullShare} f : sProp 𝕄)
      = (((xtW).slice (Rect.unit (s := S22x1600000) off' S1x3200.size p') (fun _ => rfl)).view.loc (thr d L)
        ↦[((xtW).slice (Rect.unit (s := S22x1600000) off' S1x3200.size p') (fun _ => rfl)).view.set]{fullShare} f) := by
  subst h; rfl
theorem out_congr {off off' : Fin 1 → ℕ} (h : off = off') (p : ∀ a, off a + S3200.size a ≤ S1600000.size a)
    (p' : ∀ a, off' a + S3200.size a ≤ S1600000.size a) (f : Buf (Elt F) ((oW).view.loc (thr d L))) :
    (((oW).slice (Rect.unit (s := S1600000) off S3200.size p) (fun _ => rfl)).view.loc (thr d L)
        ↦[((oW).slice (Rect.unit (s := S1600000) off S3200.size p) (fun _ => rfl)).view.set]{fullShare} f : sProp 𝕄)
      = (((oW).slice (Rect.unit (s := S1600000) off' S3200.size p') (fun _ => rfl)).view.loc (thr d L)
        ↦[((oW).slice (Rect.unit (s := S1600000) off' S3200.size p') (fun _ => rfl)).view.set]{fullShare} f) := by
  subst h; rfl

/-! The printed conditions, as facts about the trip and the tile. -/

omit [FloatOps F] in
theorem trips1 : k18_t1_loop.trips = 8 := by decide
omit [FloatOps F] in
theorem cond1_iff : ∀ (t : Fin k18_t1_loop.trips), k18_cond1 t = 1#1 ↔ 1 ≤ t.val := by decide +kernel
omit [FloatOps F] in
theorem cond2_iff : ∀ (L : grid18.Coords) (t : Fin k18_t1_loop.trips), k18_cond2 L t = 1#1 := by decide +kernel
omit [FloatOps F] in
theorem cond3_iff : ∀ (L : grid18.Coords) (t : Fin k18_t1_loop.trips), k18_cond3 L t = 1#1 ↔ t.val ≤ 6 := by decide +kernel
omit [FloatOps F] in
theorem cond4_iff : ∀ (t : Fin k18_t1_loop.trips), k18_cond4 t = 1#1 ↔ 1 ≤ t.val := by decide +kernel
omit [FloatOps F] in
theorem cond5_iff : ∀ (L : grid18.Coords) (t : Fin k18_t1_loop.trips), k18_cond5 L t = 1#1 ↔ (t.val ≤ 6 ∨ big L) := by decide +kernel
omit [FloatOps F] in
theorem cond6_iff : ∀ (L : grid18.Coords) (t : Fin k18_t1_loop.trips), k18_cond6 L t = 1#1 ↔ (t.val ≤ 5 ∨ (t.val = 6 ∧ big L)) := by decide +kernel
omit [FloatOps F] in
theorem cond7_iff : ∀ (L : grid18.Coords), k18_cond7 L = 1#1 := by decide +kernel
omit [FloatOps F] in
theorem cond8_iff : ∀ (L : grid18.Coords), k18_cond8 L = 1#1 ↔ big L := by decide +kernel

variable (O : CellTallies nD τ sig (HIx 22)) (W : Waits sig (HIx 22))
variable (fx : Buf (Elt F) ((xtW).view.loc (thr d L)))

abbrev NN : ℕ := 102400

/-- The 3200-element window of a flat staging buffer that a piece is written out from. -/
abbrev stg (a : Memref sig .scVector .vmem S25600 .f32) : Memref sig .scVector .vmem S3200 .f32 :=
  a.slice (Rect.unit (s := S25600) ![0] S3200.size inb_S25600_S3200_0) (fun _ => rfl)

/-- Piece `n` of the argument row held by exactly its elements, at the argument's contents; piece `n` of the result
    held by exactly its elements, at some contents. -/
abbrev xtPiece (n : ℕ) : sProp 𝕄 := (inM L n).view.loc (thr d L) ↦[(inM L n).view.set]{fullShare} fx
abbrev oPiece (n : ℕ) : sProp 𝕄 := iprop(∃ f, (outM L n).view.loc (thr d L) ↦[(outM L n).view.set]{fullShare} f)

/-- The lane-copy loop of a slot: the staging row keeps its contents, the flat staging buffer holds some contents. -/
def laneInv0 (g4 : Buf (Elt F) ((a4).view.loc (thr d L))) (_ : ℕ) (_ : PUnit) : sProp 𝕄 :=
  iprop(((a4).view.loc (thr d L) ↦{fullShare} g4) ∗ (∃ g, (a6).view.loc (thr d L) ↦{fullShare} g))
def laneInv1 (g5 : Buf (Elt F) ((a5).view.loc (thr d L))) (_ : ℕ) (_ : PUnit) : sProp 𝕄 :=
  iprop(((a5).view.loc (thr d L) ↦{fullShare} g5) ∗ (∃ g, (a7).view.loc (thr d L) ↦{fullShare} g))

/-- A fetch slot before trip work on piece `n`: the piece's fetch in flight (it will hand back the staging row at some
    contents, and the piece), or, when there is no such piece, the slot idle. -/
def inSlot (a : Memref sig .scVector .vmem S8x3200 .f32) (sm : DmaSem sig) (n : ℕ) : sProp 𝕄 :=
  if valid L n then
    iprop(∃ g, Transfers.Flight countersEmb (thr d L) (SemLoc.dma sm) (default : HIx 22) NN
      iprop((a.view.loc (thr d L) ↦{fullShare} g) ∗ xtPiece d L fx n))
  else iprop((∃ g, a.view.loc (thr d L) ↦{fullShare} g) ∗ semVal (thr d L, SemLoc.dma sm) 0)

/-- A write-out slot before trip work on piece `m`: piece `m - 2`'s write-out in flight (it will hand back that piece
    of the result at some contents, and the staging window), the rest of the staging buffer beside it; or idle. -/
def outSlot (a : Memref sig .scVector .vmem S25600 .f32) (sm : DmaSem sig) (m : ℕ) : sProp 𝕄 :=
  if 2 ≤ m ∧ valid L (m - 2) then
    iprop(∃ g, Transfers.Flight countersEmb (thr d L) (SemLoc.dma sm) (default : HIx 22) NN
        iprop(oPiece d L (m - 2) ∗ ((stg a).view.loc (thr d L) ↦[(stg a).view.set]{fullShare} g))
      ∗ (a.view.loc (thr d L) ↦[Finset.univ \ (stg a).view.set]{fullShare} g))
  else iprop((∃ g, a.view.loc (thr d L) ↦{fullShare} g) ∗ semVal (thr d L, SemLoc.dma sm) 0)

/-- Piece `n` when it exists, nothing otherwise. -/
def xP (n : ℕ) : sProp 𝕄 := if valid L n then xtPiece d L fx n else iprop(emp)
def oP (n : ℕ) : sProp 𝕄 := if valid L n then oPiece d L n else iprop(emp)

/-- What the tile holds outside the slots before trip `t`: every piece of the argument row but those being fetched
    (`2t`, `2t + 1`), every piece of the result but those being written out (`2t - 2`, `2t - 1`). -/
def xSet (t : ℕ) : Finset ℕ := (Finset.range 18).filter fun n => n ≠ 2 * t ∧ n ≠ 2 * t + 1
def oSet (t : ℕ) : Finset ℕ := (Finset.range 18).filter fun n => n + 2 ≠ 2 * t ∧ n + 2 ≠ 2 * t + 1

def inv (t : ℕ) (_ : PUnit) : sProp 𝕄 :=
  iprop(Transfers.MayWaits (thr d L) (none : HIx 22) O
    ∗ (∃ W', ⌜∀ p ∈ W', p ∈ W ∨ p.2 = none⌝ ∗ owes (thr d L) O W')
    ∗ bigSep (xSet t) (xP d L fx) ∗ bigSep (oSet t) (oP d L)
    ∗ inSlot d L fx a4 cc18_scratch4.sem (2 * t) ∗ outSlot d L a6 cc18_scratch6.sem (2 * t)
    ∗ inSlot d L fx a5 cc18_scratch5.sem (2 * t + 1) ∗ outSlot d L a7 cc18_scratch7.sem (2 * t + 1))

omit [FloatOps F] in
theorem two_out {Φ : ℕ → sProp 𝕄} {s : Finset ℕ} {a b : ℕ} (ha : a ∈ s) (hb : b ∈ s) (hab : a ≠ b) :
    bigSep s Φ = iprop(Φ a ∗ Φ b ∗ bigSep ((s.erase a).erase b) Φ) := by
  rw [SparseCore.bigSep_erase' ha, SparseCore.bigSep_erase' (Finset.mem_erase.mpr ⟨fun e => hab e.symm, hb⟩)]

omit [FloatOps F] in
theorem range18_split : (Finset.range 18) = insert 0 (insert 1 (xSet 0)) := by decide

theorem xRange_split (v0 : valid L 0) (v1 : valid L 1) :
    bigSep (Finset.range 18) (xP d L fx) = iprop(xtPiece d L fx 0 ∗ xtPiece d L fx 1 ∗ bigSep (xSet 0) (xP d L fx)) := by
  rw [range18_split, SparseCore.bigSep_insert' (by decide), SparseCore.bigSep_insert' (by decide)]
  unfold xP; rw [if_pos v0, if_pos v1]
omit [FloatOps F] in
theorem oSet_zero : oSet 0 = Finset.range 18 := by decide

theorem inSlot_pos {a : Memref sig .scVector .vmem S8x3200 .f32} {sm : DmaSem sig} {n : ℕ} (v : valid L n) :
    inSlot d L fx a sm n = iprop(∃ g, Transfers.Flight countersEmb (thr d L) (SemLoc.dma sm) (default : HIx 22) NN
      iprop((a.view.loc (thr d L) ↦{fullShare} g) ∗ xtPiece d L fx n)) := by unfold inSlot; rw [if_pos v]
theorem inSlot_neg {a : Memref sig .scVector .vmem S8x3200 .f32} {sm : DmaSem sig} {n : ℕ} (v : ¬ valid L n) :
    inSlot d L fx a sm n = iprop((∃ g, a.view.loc (thr d L) ↦{fullShare} g) ∗ semVal (thr d L, SemLoc.dma sm) 0) := by
  unfold inSlot; rw [if_neg v]
theorem outSlot_pos {a : Memref sig .scVector .vmem S25600 .f32} {sm : DmaSem sig} {m : ℕ} (h : 2 ≤ m ∧ valid L (m - 2)) :
    outSlot (F := F) d L a sm m = iprop(∃ g, Transfers.Flight countersEmb (thr d L) (SemLoc.dma sm) (default : HIx 22) NN
        iprop(oPiece (F := F) d L (m - 2) ∗ ((stg a).view.loc (thr d L) ↦[(stg a).view.set]{fullShare} g))
      ∗ (a.view.loc (thr d L) ↦[Finset.univ \ (stg a).view.set]{fullShare} g)) := by unfold outSlot; rw [if_pos h]
theorem outSlot_neg {a : Memref sig .scVector .vmem S25600 .f32} {sm : DmaSem sig} {m : ℕ} (h : ¬ (2 ≤ m ∧ valid L (m - 2))) :
    outSlot (F := F) d L a sm m = iprop((∃ g, a.view.loc (thr d L) ↦{fullShare} g) ∗ semVal (thr d L, SemLoc.dma sm) 0) := by
  unfold outSlot; rw [if_neg h]

/-- A fetch in flight, its source window spelt by any offsets equal to piece `n`'s, fills the fetch slot for `n`. -/
theorem fl_in {off : Fin 2 → ℕ} {n : ℕ} (h : off = ![18, pos L n]) (p : ∀ a, off a + S1x3200.size a ≤ S22x1600000.size a) (v : valid L n)
    (a : Memref sig .scVector .vmem S8x3200 .f32) (sm : DmaSem sig) :
    (iprop(∃ g, Transfers.Flight countersEmb (thr d L) (SemLoc.dma sm) (default : HIx 22) NN
        iprop((a.view.loc (thr d L) ↦{fullShare} g)
          ∗ (((xtW).slice (Rect.unit (s := S22x1600000) off S1x3200.size p) (fun _ => rfl)).view.loc (thr d L)
              ↦[((xtW).slice (Rect.unit (s := S22x1600000) off S1x3200.size p) (fun _ => rfl)).view.set]{fullShare} fx))) : sProp 𝕄)
      ⊢ inSlot d L fx a sm n := by
  rw [inSlot_pos d L fx v]
  iintro ⟨%g, H⟩
  have hD : (iprop((a.view.loc (thr d L) ↦{fullShare} g)
          ∗ (((xtW).slice (Rect.unit (s := S22x1600000) off S1x3200.size p) (fun _ => rfl)).view.loc (thr d L)
              ↦[((xtW).slice (Rect.unit (s := S22x1600000) off S1x3200.size p) (fun _ => rfl)).view.set]{fullShare} fx)) : sProp 𝕄)
      ⊢ iprop((a.view.loc (thr d L) ↦{fullShare} g) ∗ xtPiece d L fx n) := by
    iintro ⟨H1, H2⟩
    isplitl [H1]; · iexact H1
    iapply (Entails.of_eq (in_congr d L h p (in_inb L n) fx)); iexact H2
  iexists g
  iapply (Transfers.Flight_mono countersEmb (thr d L) hD); iexact H

/-- A write-out in flight, its destination window spelt by any offsets equal to piece `n`'s, with the rest of the
    staging buffer, fills the write-out slot for `n + 2`. -/
theorem fl_out {off : Fin 1 → ℕ} {n : ℕ} (h : off = ![pos L n]) (p : ∀ a, off a + S3200.size a ≤ S1600000.size a) (v : valid L n)
    (a : Memref sig .scVector .vmem S25600 .f32) (sm : DmaSem sig) :
    (iprop(∃ (f : Buf (Elt F) ((oW).view.loc (thr d L))) (g : Buf (Elt F) (a.view.loc (thr d L))), Transfers.Flight countersEmb (thr d L) (SemLoc.dma sm) (default : HIx 22) NN
        iprop((((oW).slice (Rect.unit (s := S1600000) off S3200.size p) (fun _ => rfl)).view.loc (thr d L)
              ↦[((oW).slice (Rect.unit (s := S1600000) off S3200.size p) (fun _ => rfl)).view.set]{fullShare} f)
          ∗ ((stg a).view.loc (thr d L) ↦[(stg a).view.set]{fullShare} g))
        ∗ (a.view.loc (thr d L) ↦[Finset.univ \ (stg a).view.set]{fullShare} g)) : sProp 𝕄)
      ⊢ outSlot (F := F) d L a sm (n + 2) := by
  rw [outSlot_pos (F := F) d L (m := n + 2) ⟨by omega, by simpa using v⟩]
  iintro ⟨%f, %g, H, R⟩
  have hD : (iprop((((oW).slice (Rect.unit (s := S1600000) off S3200.size p) (fun _ => rfl)).view.loc (thr d L)
              ↦[((oW).slice (Rect.unit (s := S1600000) off S3200.size p) (fun _ => rfl)).view.set]{fullShare} f)
          ∗ ((stg a).view.loc (thr d L) ↦[(stg a).view.set]{fullShare} g)) : sProp 𝕄)
      ⊢ iprop(oPiece (F := F) d L (n + 2 - 2) ∗ ((stg a).view.loc (thr d L) ↦[(stg a).view.set]{fullShare} g)) := by
    rw [Nat.add_sub_cancel]
    iintro ⟨H1, H2⟩
    isplitl [H1]
    · iexists f; iapply (Entails.of_eq (out_congr d L h p (out_inb L n) f)); iexact H1
    · iexact H2
  iexists g
  isplitl [H]
  · iapply (Transfers.Flight_mono countersEmb (thr d L) hD); iexact H
  · iexact R

/-! The pieces outside the slots, from one trip to the next. -/
def xCore (k : ℕ) : Finset ℕ := (Finset.range 18).filter fun n => n ≠ 2 * k ∧ n ≠ 2 * k + 1 ∧ n ≠ 2 * k + 2 ∧ n ≠ 2 * k + 3
def oCore (k : ℕ) : Finset ℕ := (Finset.range 18).filter fun n => n + 2 ≠ 2 * k ∧ n + 2 ≠ 2 * k + 1 ∧ n ≠ 2 * k ∧ n ≠ 2 * k + 1

omit [FloatOps F] in
theorem xSet_out (Φ : ℕ → sProp 𝕄) (k : ℕ) (hk : k < 8) : bigSep (xSet k) Φ = iprop(Φ (2 * k + 2) ∗ Φ (2 * k + 3) ∗ bigSep (xCore k) Φ) := by
  have e : ((xSet k).erase (2 * k + 2)).erase (2 * k + 3) = xCore k := by
    ext n; simp only [xSet, xCore, Finset.mem_erase, Finset.mem_filter, Finset.mem_range]; omega
  rw [← e]; exact two_out (by simp only [xSet, Finset.mem_filter, Finset.mem_range]; omega) (by simp only [xSet, Finset.mem_filter, Finset.mem_range]; omega) (by omega)
omit [FloatOps F] in
theorem xSet_in (Φ : ℕ → sProp 𝕄) (k : ℕ) (hk : k < 8) : bigSep (xSet (k + 1)) Φ = iprop(Φ (2 * k) ∗ Φ (2 * k + 1) ∗ bigSep (xCore k) Φ) := by
  have e : ((xSet (k + 1)).erase (2 * k)).erase (2 * k + 1) = xCore k := by
    ext n; simp only [xSet, xCore, Finset.mem_erase, Finset.mem_filter, Finset.mem_range]; omega
  rw [← e]; exact two_out (by simp only [xSet, Finset.mem_filter, Finset.mem_range]; omega) (by simp only [xSet, Finset.mem_filter, Finset.mem_range]; omega) (by omega)
omit [FloatOps F] in
theorem oSet_out (Φ : ℕ → sProp 𝕄) (k : ℕ) (hk : k < 8) : bigSep (oSet k) Φ = iprop(Φ (2 * k) ∗ Φ (2 * k + 1) ∗ bigSep (oCore k) Φ) := by
  have e : ((oSet k).erase (2 * k)).erase (2 * k + 1) = oCore k := by
    ext n; simp only [oSet, oCore, Finset.mem_erase, Finset.mem_filter, Finset.mem_range]; omega
  rw [← e]; exact two_out (by simp only [oSet, Finset.mem_filter, Finset.mem_range]; omega) (by simp only [oSet, Finset.mem_filter, Finset.mem_range]; omega) (by omega)
omit [FloatOps F] in
theorem oSet_in (Φ : ℕ → sProp 𝕄) (k : ℕ) (hk : k < 8) (hk1 : 1 ≤ k) :
    bigSep (oSet (k + 1)) Φ = iprop(Φ (2 * k - 2) ∗ Φ (2 * k - 1) ∗ bigSep (oCore k) Φ) := by
  have e : ((oSet (k + 1)).erase (2 * k - 2)).erase (2 * k - 1) = oCore k := by
    ext n; simp only [oSet, oCore, Finset.mem_erase, Finset.mem_filter, Finset.mem_range]; omega
  rw [← e]; exact two_out (by simp only [oSet, Finset.mem_filter, Finset.mem_range]; omega) (by simp only [oSet, Finset.mem_filter, Finset.mem_range]; omega) (by omega)

theorem xP_pos {n : ℕ} (v : valid L n) : xP d L fx n = xtPiece d L fx n := if_pos v
theorem oP_pos {n : ℕ} (v : valid L n) : oP (F := F) d L n = oPiece (F := F) d L n := if_pos v
theorem xP_neg {n : ℕ} (v : ¬ valid L n) : xP d L fx n = iprop(emp) := if_neg v
theorem oP_neg {n : ℕ} (v : ¬ valid L n) : oP (F := F) d L n = iprop(emp) := if_neg v

/-- Piece `n` of the result at its final contents: row 18 of the transposed argument. -/
def oQ (n : ℕ) : sProp 𝕄 :=
  if valid L n then (outM L n).view.loc (thr d L) ↦[(outM L n).view.set]{fullShare} (Cert.Spec.row 18 fx) else iprop(emp)

/-- What a tile is handed for the call: its pieces of row 18 of the transposed argument, at the argument's contents, and
    its pieces of the result at some contents. What it hands back: the same pieces of the argument, and its pieces of
    the result holding the row. -/
def goRes : sProp 𝕄 := iprop(bigSep (Finset.range 18) (xP d L fx) ∗ bigSep (Finset.range 18) (oP (F := F) d L))
def tdRes : sProp 𝕄 := iprop(bigSep (Finset.range 18) (xP d L fx) ∗ bigSep (Finset.range 18) (oQ d L fx))

end Tile

end Cert.Proof.TileB18

end
-- ==== Proof.TileB19Defs.lean ====
/-
  One vector subcore's task of copy kernel 19 (counting from 0): definitions. The task moves its pieces of row 19 of the
  transposed argument (pieces of 3200 consecutive elements, piece number 2·s + c + 32·n for the subcore (c, s) and
  n = 0, 1, … while that number is below 500) into the flat result: each piece is fetched into a staging row, copied
  16 lanes at a time into a flat staging buffer, and written out, two pieces in flight at a time. Here: the pieces as
  memrefs, the program's own spellings of them, the printed conditions as facts about the trip, the two slots' states
  between trips, and what the tile holds outside the slots.
-/
import proofs.«206869_g37898791420194_cont_8to1_b_558_20_alg».proof.Defs
import Idealize.ShloMosaic.Lib.SparseCore.Launch
import Idealize.ShloMosaic.Lib.StableHlo.Run
import Idealize.ShloMosaic.Lib.Pipeline.Kit
import Idealize.ShloMosaic.Lib.Tactic
import proofs.«206869_g37898791420194_cont_8to1_b_558_20_alg».proof.Proof.Gen.Kernel
import proofs.«206869_g37898791420194_cont_8to1_b_558_20_alg».proof.Proof.Gen.Kernel.Skeleton
import proofs.«206869_g37898791420194_cont_8to1_b_558_20_alg».proof.Proof.Spec

noncomputable section

namespace Cert.Proof.TileB19

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

abbrev ΛP : Labels := Pipeline.Sig Λ₀ (Fin 0) fun p => (pcfgs (F := F) p).Adm
abbrev K : SparseCore.Cfg τ sig (ΛP (F := F)) 22 := sc (F := F)
abbrev 𝒱₀ : Variants := Variants.none

abbrev UH : Type := URounds (GSem nD τ sig) ℕ
abbrev UU : Type := UH × Counters

local notation "𝕄" => MT nD τ sig (HIx 22) (Elt F) ℕ UU ℕ

local notation "xtW" => (Memref.whole Cert.Kernel.main_v0_scv : Memref Cert.Kernel.sig Kind.scVector Space.hbm Cert.Kernel.S22x1600000 EltTy.f32)
local notation "oW" => (Memref.whole Cert.Kernel.main_v20_scv : Memref Cert.Kernel.sig Kind.scVector Space.hbm Cert.Kernel.S1600000 EltTy.f32)
local notation "a4" => (Memref.whole Cert.Kernel.cc19_scratch0 : Memref Cert.Kernel.sig Kind.scVector Space.vmem Cert.Kernel.S8x3200 EltTy.f32)
local notation "a5" => (Memref.whole Cert.Kernel.cc19_scratch1 : Memref Cert.Kernel.sig Kind.scVector Space.vmem Cert.Kernel.S8x3200 EltTy.f32)
local notation "a6" => (Memref.whole Cert.Kernel.cc19_scratch2 : Memref Cert.Kernel.sig Kind.scVector Space.vmem Cert.Kernel.S25600 EltTy.f32)
local notation "a7" => (Memref.whole Cert.Kernel.cc19_scratch3 : Memref Cert.Kernel.sig Kind.scVector Space.vmem Cert.Kernel.S25600 EltTy.f32)

variable [FloatOps F]

section Tile

variable (d : Dev nD) (L : grid19.Coords)

abbrev cV (L : grid19.Coords) : Fin τ.nSC := (L 0).castLE hcore19
abbrev jV (L : grid19.Coords) : Fin τ.nSub := (L 1).castLE hsub19
abbrev thr (d : Dev nD) (L : grid19.Coords) : Thread nD τ := V d (cV L) (jV L)

/-- The tile's number 2·s + c, and whether it has sixteen pieces (numbers below 20) or fifteen. -/
abbrev wid (L : grid19.Coords) : ℕ := 2 * (L 1).val + (L 0).val
abbrev big (L : grid19.Coords) : Prop := wid L < 20

omit [FloatOps F] in
theorem wid_lt (L : grid19.Coords) : wid L < 32 := by
  have h0 : (L 0).val < 2 := (L 0).isLt
  have h1 : (L 1).val < 16 := (L 1).isLt
  unfold wid; omega

/-- Piece `n` of the tile exists: `n < 15`, or `n = 15` on a tile with sixteen pieces. It is the piece number
    `wid + 32·n < 500` of the row. -/
def valid (L : grid19.Coords) (n : ℕ) : Prop := n < 15 ∨ (n = 15 ∧ big L)
instance (L : grid19.Coords) (n : ℕ) : Decidable (valid L n) := by unfold valid big; infer_instance

omit [FloatOps F] in
theorem valid_iff (L : grid19.Coords) (n : ℕ) : valid L n ↔ wid L + 32 * n < 500 := by
  have := wid_lt L; unfold valid big; omega

/-- Where piece `n` starts in the row (clamped to the last piece of the row, so that the rectangle is in bounds for
    every `n`; for a valid piece the clamp is idle). -/
abbrev pos (L : grid19.Coords) (n : ℕ) : ℕ := 3200 * min (wid L + 32 * n) 499

omit [FloatOps F] in
theorem pos_valid {L : grid19.Coords} {n : ℕ} (h : valid L n) : pos L n = 6400 * (L 1).val + 3200 * (L 0).val + 102400 * n := by
  have := (valid_iff L n).mp h; unfold pos wid at *; omega

omit [FloatOps F] in
theorem in_inb (L : grid19.Coords) (n : ℕ) : ∀ a, (![19, pos L n] : Fin 2 → ℕ) a + S1x3200.size a ≤ S22x1600000.size a := by
  intro a; fin_cases a
  · show 19 + 1 ≤ 22; omega
  · show pos L n + 3200 ≤ 1600000; unfold pos; omega
omit [FloatOps F] in
theorem out_inb (L : grid19.Coords) (n : ℕ) : ∀ a, (![pos L n] : Fin 1 → ℕ) a + S3200.size a ≤ S1600000.size a := by
  intro a; fin_cases a
  show pos L n + 3200 ≤ 1600000; unfold pos; omega

/-- Piece `n` of row 19 of the transposed argument, and piece `n` of the flat result, as memrefs of the tile. -/
abbrev inM (L : grid19.Coords) (n : ℕ) : Memref sig .scVector .hbm S1x3200 .f32 :=
  (xtW).slice (Rect.unit (s := S22x1600000) ![19, pos L n] S1x3200.size (in_inb L n)) (fun _ => rfl)
abbrev outM (L : grid19.Coords) (n : ℕ) : Memref sig .scVector .hbm S3200 .f32 :=
  (oW).slice (Rect.unit (s := S1600000) ![pos L n] S3200.size (out_inb L n)) (fun _ => rfl)

/-! The program's own slices are these pieces: by the closed forms of its offset functions. -/

omit [FloatOps F] in
theorem off2 {a b : ℕ} (h : a = b) : (![19, a] : Fin 2 → ℕ) = ![19, b] := by rw [h]
omit [FloatOps F] in
theorem off1' {a b : ℕ} (h : a = b) : (![a] : Fin 1 → ℕ) = ![b] := by rw [h]

omit [FloatOps F] in
theorem off_in0 (L : grid19.Coords) (h : valid L 0) : k19_off1 L 0#32 = ![19, pos L 0] :=
  (k19_off1_eq L 0).trans (off2 (by rw [pos_valid h]; simp))
omit [FloatOps F] in
theorem off_in1 (L : grid19.Coords) (h : valid L 1) : k19_off1 L 32#32 = ![19, pos L 1] :=
  (k19_off1_eq L 1).trans (off2 (by rw [pos_valid h]; simp))
omit [FloatOps F] in
theorem off_6 (L : grid19.Coords) (t : Fin k19_t1_loop.trips) (h : valid L (2 * t.val + 2)) : k19_off6 L t = ![19, pos L (2 * t.val + 2)] :=
  (k19_off6_eq L t).trans (off2 (by rw [pos_valid h]; omega))
omit [FloatOps F] in
theorem off_11 (L : grid19.Coords) (t : Fin k19_t1_loop.trips) (h : valid L (2 * t.val + 3)) : k19_off11 L t = ![19, pos L (2 * t.val + 3)] :=
  (k19_off11_eq L t).trans (off2 (by rw [pos_valid h]; omega))
omit [FloatOps F] in
theorem off_5 (L : grid19.Coords) (t : Fin k19_t1_loop.trips) (h : valid L (2 * t.val)) : k19_off5 L t = ![pos L (2 * t.val)] :=
  (k19_off5_eq L t).trans (off1' (by rw [pos_valid h]; omega))
omit [FloatOps F] in
theorem off_10 (L : grid19.Coords) (t : Fin k19_t1_loop.trips) (h : valid L (2 * t.val + 1)) : k19_off10 L t = ![pos L (2 * t.val + 1)] :=
  (k19_off10_eq L t).trans (off1' (by rw [pos_valid h]; omega))

/-- Holding a 1 × 3200 window of the transposed argument, or a 3200 window of the result, by exactly its elements
    says the same whichever way the window's offsets are spelt. -/
theorem in_congr {off off' : Fin 2 → ℕ} (h : off = off') (p : ∀ a, off a + S1x3200.size a ≤ S22x1600000.size a)
    (p' : ∀ a, off' a + S1x3200.size a ≤ S22x1600000.size a) (f : Buf (Elt F) ((xtW).view.loc (thr d L))) :
    (((xtW).slice (Rect.unit (s := S22x1600000) off S1x3200.size p) (fun _ => rfl)).view.loc (thr d L)
        ↦[((xtW).slice (Rect.unit (s := S22x1600000) off S1x3200.size p) (fun _ => rfl)).view.set]{fullShare} f : sProp 𝕄)
      = (((xtW).slice (Rect.unit (s := S22x1600000) off' S1x3200.size p') (fun _ => rfl)).view.loc (thr d L)
        ↦[((xtW).slice (Rect.unit (s := S22x1600000) off' S1x3200.size p') (fun _ => rfl)).view.set]{fullShare} f) := by
  subst h; rfl
theorem out_congr {off off' : Fin 1 → ℕ} (h : off = off') (p : ∀ a, off a + S3200.size a ≤ S1600000.size a)
    (p' : ∀ a, off' a + S3200.size a ≤ S1600000.size a) (f : Buf (Elt F) ((oW).view.loc (thr d L))) :
    (((oW).slice (Rect.unit (s := S1600000) off S3200.size p) (fun _ => rfl)).view.loc (thr d L)
        ↦[((oW).slice (Rect.unit (s := S1600000) off S3200.size p) (fun _ => rfl)).view.set]{fullShare} f : sProp 𝕄)
      = (((oW).slice (Rect.unit (s := S1600000) off' S3200.size p') (fun _ => rfl)).view.loc (thr d L)
        ↦[((oW).slice (Rect.unit (s := S1600000) off' S3200.size p') (fun _ => rfl)).view.set]{fullShare} f) := by
  subst h; rfl

/-! The printed conditions, as facts about the trip and the tile. -/

omit [FloatOps F] in
theorem trips1 : k19_t1_loop.trips = 8 := by decide
omit [FloatOps F] in
theorem cond1_iff : ∀ (t : Fin k19_t1_loop.trips), k19_cond1 t = 1#1 ↔ 1 ≤ t.val := by decide +kernel
omit [FloatOps F] in
theorem cond2_iff : ∀ (L : grid19.Coords) (t : Fin k19_t1_loop.trips), k19_cond2 L t = 1#1 := by decide +kernel
omit [FloatOps F] in
theorem cond3_iff : ∀ (L : grid19.Coords) (t : Fin k19_t1_loop.trips), k19_cond3 L t = 1#1 ↔ t.val ≤ 6 := by decide +kernel
omit [FloatOps F] in
theorem cond4_iff : ∀ (t : Fin k19_t1_loop.trips), k19_cond4 t = 1#1 ↔ 1 ≤ t.val := by decide +kernel
omit [FloatOps F] in
theorem cond5_iff : ∀ (L : grid19.Coords) (t : Fin k19_t1_loop.trips), k19_cond5 L t = 1#1 ↔ (t.val ≤ 6 ∨ big L) := by decide +kernel
omit [FloatOps F] in
theorem cond6_iff : ∀ (L : grid19.Coords) (t : Fin k19_t1_loop.trips), k19_cond6 L t = 1#1 ↔ (t.val ≤ 5 ∨ (t.val = 6 ∧ big L)) := by decide +kernel
omit [FloatOps F] in
theorem cond7_iff : ∀ (L : grid19.Coords), k19_cond7 L = 1#1 := by decide +kernel
omit [FloatOps F] in
theorem cond8_iff : ∀ (L : grid19.Coords), k19_cond8 L = 1#1 ↔ big L := by decide +kernel

variable (O : CellTallies nD τ sig (HIx 22)) (W : Waits sig (HIx 22))
variable (fx : Buf (Elt F) ((xtW).view.loc (thr d L)))

abbrev NN : ℕ := 102400

/-- The 3200-element window of a flat staging buffer that a piece is written out from. -/
abbrev stg (a : Memref sig .scVector .vmem S25600 .f32) : Memref sig .scVector .vmem S3200 .f32 :=
  a.slice (Rect.unit (s := S25600) ![0] S3200.size inb_S25600_S3200_0) (fun _ => rfl)

/-- Piece `n` of the argument row held by exactly its elements, at the argument's contents; piece `n` of the result
    held by exactly its elements, at some contents. -/
abbrev xtPiece (n : ℕ) : sProp 𝕄 := (inM L n).view.loc (thr d L) ↦[(inM L n).view.set]{fullShare} fx
abbrev oPiece (n : ℕ) : sProp 𝕄 := iprop(∃ f, (outM L n).view.loc (thr d L) ↦[(outM L n).view.set]{fullShare} f)

/-- The lane-copy loop of a slot: the staging row keeps its contents, the flat staging buffer holds some contents. -/
def laneInv0 (g4 : Buf (Elt F) ((a4).view.loc (thr d L))) (_ : ℕ) (_ : PUnit) : sProp 𝕄 :=
  iprop(((a4).view.loc (thr d L) ↦{fullShare} g4) ∗ (∃ g, (a6).view.loc (thr d L) ↦{fullShare} g))
def laneInv1 (g5 : Buf (Elt F) ((a5).view.loc (thr d L))) (_ : ℕ) (_ : PUnit) : sProp 𝕄 :=
  iprop(((a5).view.loc (thr d L) ↦{fullShare} g5) ∗ (∃ g, (a7).view.loc (thr d L) ↦{fullShare} g))

/-- A fetch slot before trip work on piece `n`: the piece's fetch in flight (it will hand back the staging row at some
    contents, and the piece), or, when there is no such piece, the slot idle. -/
def inSlot (a : Memref sig .scVector .vmem S8x3200 .f32) (sm : DmaSem sig) (n : ℕ) : sProp 𝕄 :=
  if valid L n then
    iprop(∃ g, Transfers.Flight countersEmb (thr d L) (SemLoc.dma sm) (default : HIx 22) NN
      iprop((a.view.loc (thr d L) ↦{fullShare} g) ∗ xtPiece d L fx n))
  else iprop((∃ g, a.view.loc (thr d L) ↦{fullShare} g) ∗ semVal (thr d L, SemLoc.dma sm) 0)

/-- A write-out slot before trip work on piece `m`: piece `m - 2`'s write-out in flight (it will hand back that piece
    of the result at some contents, and the staging window), the rest of the staging buffer beside it; or idle. -/
def outSlot (a : Memref sig .scVector .vmem S25600 .f32) (sm : DmaSem sig) (m : ℕ) : sProp 𝕄 :=
  if 2 ≤ m ∧ valid L (m - 2) then
    iprop(∃ g, Transfers.Flight countersEmb (thr d L) (SemLoc.dma sm) (default : HIx 22) NN
        iprop(oPiece d L (m - 2) ∗ ((stg a).view.loc (thr d L) ↦[(stg a).view.set]{fullShare} g))
      ∗ (a.view.loc (thr d L) ↦[Finset.univ \ (stg a).view.set]{fullShare} g))
  else iprop((∃ g, a.view.loc (thr d L) ↦{fullShare} g) ∗ semVal (thr d L, SemLoc.dma sm) 0)

/-- Piece `n` when it exists, nothing otherwise. -/
def xP (n : ℕ) : sProp 𝕄 := if valid L n then xtPiece d L fx n else iprop(emp)
def oP (n : ℕ) : sProp 𝕄 := if valid L n then oPiece d L n else iprop(emp)

/-- What the tile holds outside the slots before trip `t`: every piece of the argument row but those being fetched
    (`2t`, `2t + 1`), every piece of the result but those being written out (`2t - 2`, `2t - 1`). -/
def xSet (t : ℕ) : Finset ℕ := (Finset.range 18).filter fun n => n ≠ 2 * t ∧ n ≠ 2 * t + 1
def oSet (t : ℕ) : Finset ℕ := (Finset.range 18).filter fun n => n + 2 ≠ 2 * t ∧ n + 2 ≠ 2 * t + 1

def inv (t : ℕ) (_ : PUnit) : sProp 𝕄 :=
  iprop(Transfers.MayWaits (thr d L) (none : HIx 22) O
    ∗ (∃ W', ⌜∀ p ∈ W', p ∈ W ∨ p.2 = none⌝ ∗ owes (thr d L) O W')
    ∗ bigSep (xSet t) (xP d L fx) ∗ bigSep (oSet t) (oP d L)
    ∗ inSlot d L fx a4 cc19_scratch4.sem (2 * t) ∗ outSlot d L a6 cc19_scratch6.sem (2 * t)
    ∗ inSlot d L fx a5 cc19_scratch5.sem (2 * t + 1) ∗ outSlot d L a7 cc19_scratch7.sem (2 * t + 1))

omit [FloatOps F] in
theorem two_out {Φ : ℕ → sProp 𝕄} {s : Finset ℕ} {a b : ℕ} (ha : a ∈ s) (hb : b ∈ s) (hab : a ≠ b) :
    bigSep s Φ = iprop(Φ a ∗ Φ b ∗ bigSep ((s.erase a).erase b) Φ) := by
  rw [SparseCore.bigSep_erase' ha, SparseCore.bigSep_erase' (Finset.mem_erase.mpr ⟨fun e => hab e.symm, hb⟩)]

omit [FloatOps F] in
theorem range18_split : (Finset.range 18) = insert 0 (insert 1 (xSet 0)) := by decide

theorem xRange_split (v0 : valid L 0) (v1 : valid L 1) :
    bigSep (Finset.range 18) (xP d L fx) = iprop(xtPiece d L fx 0 ∗ xtPiece d L fx 1 ∗ bigSep (xSet 0) (xP d L fx)) := by
  rw [range18_split, SparseCore.bigSep_insert' (by decide), SparseCore.bigSep_insert' (by decide)]
  unfold xP; rw [if_pos v0, if_pos v1]
omit [FloatOps F] in
theorem oSet_zero : oSet 0 = Finset.range 18 := by decide

theorem inSlot_pos {a : Memref sig .scVector .vmem S8x3200 .f32} {sm : DmaSem sig} {n : ℕ} (v : valid L n) :
    inSlot d L fx a sm n = iprop(∃ g, Transfers.Flight countersEmb (thr d L) (SemLoc.dma sm) (default : HIx 22) NN
      iprop((a.view.loc (thr d L) ↦{fullShare} g) ∗ xtPiece d L fx n)) := by unfold inSlot; rw [if_pos v]
theorem inSlot_neg {a : Memref sig .scVector .vmem S8x3200 .f32} {sm : DmaSem sig} {n : ℕ} (v : ¬ valid L n) :
    inSlot d L fx a sm n = iprop((∃ g, a.view.loc (thr d L) ↦{fullShare} g) ∗ semVal (thr d L, SemLoc.dma sm) 0) := by
  unfold inSlot; rw [if_neg v]
theorem outSlot_pos {a : Memref sig .scVector .vmem S25600 .f32} {sm : DmaSem sig} {m : ℕ} (h : 2 ≤ m ∧ valid L (m - 2)) :
    outSlot (F := F) d L a sm m = iprop(∃ g, Transfers.Flight countersEmb (thr d L) (SemLoc.dma sm) (default : HIx 22) NN
        iprop(oPiece (F := F) d L (m - 2) ∗ ((stg a).view.loc (thr d L) ↦[(stg a).view.set]{fullShare} g))
      ∗ (a.view.loc (thr d L) ↦[Finset.univ \ (stg a).view.set]{fullShare} g)) := by unfold outSlot; rw [if_pos h]
theorem outSlot_neg {a : Memref sig .scVector .vmem S25600 .f32} {sm : DmaSem sig} {m : ℕ} (h : ¬ (2 ≤ m ∧ valid L (m - 2))) :
    outSlot (F := F) d L a sm m = iprop((∃ g, a.view.loc (thr d L) ↦{fullShare} g) ∗ semVal (thr d L, SemLoc.dma sm) 0) := by
  unfold outSlot; rw [if_neg h]

/-- A fetch in flight, its source window spelt by any offsets equal to piece `n`'s, fills the fetch slot for `n`. -/
theorem fl_in {off : Fin 2 → ℕ} {n : ℕ} (h : off = ![19, pos L n]) (p : ∀ a, off a + S1x3200.size a ≤ S22x1600000.size a) (v : valid L n)
    (a : Memref sig .scVector .vmem S8x3200 .f32) (sm : DmaSem sig) :
    (iprop(∃ g, Transfers.Flight countersEmb (thr d L) (SemLoc.dma sm) (default : HIx 22) NN
        iprop((a.view.loc (thr d L) ↦{fullShare} g)
          ∗ (((xtW).slice (Rect.unit (s := S22x1600000) off S1x3200.size p) (fun _ => rfl)).view.loc (thr d L)
              ↦[((xtW).slice (Rect.unit (s := S22x1600000) off S1x3200.size p) (fun _ => rfl)).view.set]{fullShare} fx))) : sProp 𝕄)
      ⊢ inSlot d L fx a sm n := by
  rw [inSlot_pos d L fx v]
  iintro ⟨%g, H⟩
  have hD : (iprop((a.view.loc (thr d L) ↦{fullShare} g)
          ∗ (((xtW).slice (Rect.unit (s := S22x1600000) off S1x3200.size p) (fun _ => rfl)).view.loc (thr d L)
              ↦[((xtW).slice (Rect.unit (s := S22x1600000) off S1x3200.size p) (fun _ => rfl)).view.set]{fullShare} fx)) : sProp 𝕄)
      ⊢ iprop((a.view.loc (thr d L) ↦{fullShare} g) ∗ xtPiece d L fx n) := by
    iintro ⟨H1, H2⟩
    isplitl [H1]; · iexact H1
    iapply (Entails.of_eq (in_congr d L h p (in_inb L n) fx)); iexact H2
  iexists g
  iapply (Transfers.Flight_mono countersEmb (thr d L) hD); iexact H

/-- A write-out in flight, its destination window spelt by any offsets equal to piece `n`'s, with the rest of the
    staging buffer, fills the write-out slot for `n + 2`. -/
theorem fl_out {off : Fin 1 → ℕ} {n : ℕ} (h : off = ![pos L n]) (p : ∀ a, off a + S3200.size a ≤ S1600000.size a) (v : valid L n)
    (a : Memref sig .scVector .vmem S25600 .f32) (sm : DmaSem sig) :
    (iprop(∃ (f : Buf (Elt F) ((oW).view.loc (thr d L))) (g : Buf (Elt F) (a.view.loc (thr d L))), Transfers.Flight countersEmb (thr d L) (SemLoc.dma sm) (default : HIx 22) NN
        iprop((((oW).slice (Rect.unit (s := S1600000) off S3200.size p) (fun _ => rfl)).view.loc (thr d L)
              ↦[((oW).slice (Rect.unit (s := S1600000) off S3200.size p) (fun _ => rfl)).view.set]{fullShare} f)
          ∗ ((stg a).view.loc (thr d L) ↦[(stg a).view.set]{fullShare} g))
        ∗ (a.view.loc (thr d L) ↦[Finset.univ \ (stg a).view.set]{fullShare} g)) : sProp 𝕄)
      ⊢ outSlot (F := F) d L a sm (n + 2) := by
  rw [outSlot_pos (F := F) d L (m := n + 2) ⟨by omega, by simpa using v⟩]
  iintro ⟨%f, %g, H, R⟩
  have hD : (iprop((((oW).slice (Rect.unit (s := S1600000) off S3200.size p) (fun _ => rfl)).view.loc (thr d L)
              ↦[((oW).slice (Rect.unit (s := S1600000) off S3200.size p) (fun _ => rfl)).view.set]{fullShare} f)
          ∗ ((stg a).view.loc (thr d L) ↦[(stg a).view.set]{fullShare} g)) : sProp 𝕄)
      ⊢ iprop(oPiece (F := F) d L (n + 2 - 2) ∗ ((stg a).view.loc (thr d L) ↦[(stg a).view.set]{fullShare} g)) := by
    rw [Nat.add_sub_cancel]
    iintro ⟨H1, H2⟩
    isplitl [H1]
    · iexists f; iapply (Entails.of_eq (out_congr d L h p (out_inb L n) f)); iexact H1
    · iexact H2
  iexists g
  isplitl [H]
  · iapply (Transfers.Flight_mono countersEmb (thr d L) hD); iexact H
  · iexact R

/-! The pieces outside the slots, from one trip to the next. -/
def xCore (k : ℕ) : Finset ℕ := (Finset.range 18).filter fun n => n ≠ 2 * k ∧ n ≠ 2 * k + 1 ∧ n ≠ 2 * k + 2 ∧ n ≠ 2 * k + 3
def oCore (k : ℕ) : Finset ℕ := (Finset.range 18).filter fun n => n + 2 ≠ 2 * k ∧ n + 2 ≠ 2 * k + 1 ∧ n ≠ 2 * k ∧ n ≠ 2 * k + 1

omit [FloatOps F] in
theorem xSet_out (Φ : ℕ → sProp 𝕄) (k : ℕ) (hk : k < 8) : bigSep (xSet k) Φ = iprop(Φ (2 * k + 2) ∗ Φ (2 * k + 3) ∗ bigSep (xCore k) Φ) := by
  have e : ((xSet k).erase (2 * k + 2)).erase (2 * k + 3) = xCore k := by
    ext n; simp only [xSet, xCore, Finset.mem_erase, Finset.mem_filter, Finset.mem_range]; omega
  rw [← e]; exact two_out (by simp only [xSet, Finset.mem_filter, Finset.mem_range]; omega) (by simp only [xSet, Finset.mem_filter, Finset.mem_range]; omega) (by omega)
omit [FloatOps F] in
theorem xSet_in (Φ : ℕ → sProp 𝕄) (k : ℕ) (hk : k < 8) : bigSep (xSet (k + 1)) Φ = iprop(Φ (2 * k) ∗ Φ (2 * k + 1) ∗ bigSep (xCore k) Φ) := by
  have e : ((xSet (k + 1)).erase (2 * k)).erase (2 * k + 1) = xCore k := by
    ext n; simp only [xSet, xCore, Finset.mem_erase, Finset.mem_filter, Finset.mem_range]; omega
  rw [← e]; exact two_out (by simp only [xSet, Finset.mem_filter, Finset.mem_range]; omega) (by simp only [xSet, Finset.mem_filter, Finset.mem_range]; omega) (by omega)
omit [FloatOps F] in
theorem oSet_out (Φ : ℕ → sProp 𝕄) (k : ℕ) (hk : k < 8) : bigSep (oSet k) Φ = iprop(Φ (2 * k) ∗ Φ (2 * k + 1) ∗ bigSep (oCore k) Φ) := by
  have e : ((oSet k).erase (2 * k)).erase (2 * k + 1) = oCore k := by
    ext n; simp only [oSet, oCore, Finset.mem_erase, Finset.mem_filter, Finset.mem_range]; omega
  rw [← e]; exact two_out (by simp only [oSet, Finset.mem_filter, Finset.mem_range]; omega) (by simp only [oSet, Finset.mem_filter, Finset.mem_range]; omega) (by omega)
omit [FloatOps F] in
theorem oSet_in (Φ : ℕ → sProp 𝕄) (k : ℕ) (hk : k < 8) (hk1 : 1 ≤ k) :
    bigSep (oSet (k + 1)) Φ = iprop(Φ (2 * k - 2) ∗ Φ (2 * k - 1) ∗ bigSep (oCore k) Φ) := by
  have e : ((oSet (k + 1)).erase (2 * k - 2)).erase (2 * k - 1) = oCore k := by
    ext n; simp only [oSet, oCore, Finset.mem_erase, Finset.mem_filter, Finset.mem_range]; omega
  rw [← e]; exact two_out (by simp only [oSet, Finset.mem_filter, Finset.mem_range]; omega) (by simp only [oSet, Finset.mem_filter, Finset.mem_range]; omega) (by omega)

theorem xP_pos {n : ℕ} (v : valid L n) : xP d L fx n = xtPiece d L fx n := if_pos v
theorem oP_pos {n : ℕ} (v : valid L n) : oP (F := F) d L n = oPiece (F := F) d L n := if_pos v
theorem xP_neg {n : ℕ} (v : ¬ valid L n) : xP d L fx n = iprop(emp) := if_neg v
theorem oP_neg {n : ℕ} (v : ¬ valid L n) : oP (F := F) d L n = iprop(emp) := if_neg v

/-- Piece `n` of the result at its final contents: row 19 of the transposed argument. -/
def oQ (n : ℕ) : sProp 𝕄 :=
  if valid L n then (outM L n).view.loc (thr d L) ↦[(outM L n).view.set]{fullShare} (Cert.Spec.row 19 fx) else iprop(emp)

/-- What a tile is handed for the call: its pieces of row 19 of the transposed argument, at the argument's contents, and
    its pieces of the result at some contents. What it hands back: the same pieces of the argument, and its pieces of
    the result holding the row. -/
def goRes : sProp 𝕄 := iprop(bigSep (Finset.range 18) (xP d L fx) ∗ bigSep (Finset.range 18) (oP (F := F) d L))
def tdRes : sProp 𝕄 := iprop(bigSep (Finset.range 18) (xP d L fx) ∗ bigSep (Finset.range 18) (oQ d L fx))

end Tile

end Cert.Proof.TileB19

end
-- ==== Proof.TileB20Defs.lean ====
/-
  One vector subcore's task of copy kernel 20 (counting from 0): definitions. The task moves its pieces of row 20 of the
  transposed argument (pieces of 3200 consecutive elements, piece number 2·s + c + 32·n for the subcore (c, s) and
  n = 0, 1, … while that number is below 500) into the flat result: each piece is fetched into a staging row, copied
  16 lanes at a time into a flat staging buffer, and written out, two pieces in flight at a time. Here: the pieces as
  memrefs, the program's own spellings of them, the printed conditions as facts about the trip, the two slots' states
  between trips, and what the tile holds outside the slots.
-/
import proofs.«206869_g37898791420194_cont_8to1_b_558_20_alg».proof.Defs
import Idealize.ShloMosaic.Lib.SparseCore.Launch
import Idealize.ShloMosaic.Lib.StableHlo.Run
import Idealize.ShloMosaic.Lib.Pipeline.Kit
import Idealize.ShloMosaic.Lib.Tactic
import proofs.«206869_g37898791420194_cont_8to1_b_558_20_alg».proof.Proof.Gen.Kernel
import proofs.«206869_g37898791420194_cont_8to1_b_558_20_alg».proof.Proof.Gen.Kernel.Skeleton
import proofs.«206869_g37898791420194_cont_8to1_b_558_20_alg».proof.Proof.Spec

noncomputable section

namespace Cert.Proof.TileB20

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

abbrev ΛP : Labels := Pipeline.Sig Λ₀ (Fin 0) fun p => (pcfgs (F := F) p).Adm
abbrev K : SparseCore.Cfg τ sig (ΛP (F := F)) 22 := sc (F := F)
abbrev 𝒱₀ : Variants := Variants.none

abbrev UH : Type := URounds (GSem nD τ sig) ℕ
abbrev UU : Type := UH × Counters

local notation "𝕄" => MT nD τ sig (HIx 22) (Elt F) ℕ UU ℕ

local notation "xtW" => (Memref.whole Cert.Kernel.main_v0_scv : Memref Cert.Kernel.sig Kind.scVector Space.hbm Cert.Kernel.S22x1600000 EltTy.f32)
local notation "oW" => (Memref.whole Cert.Kernel.main_v21_scv : Memref Cert.Kernel.sig Kind.scVector Space.hbm Cert.Kernel.S1600000 EltTy.f32)
local notation "a4" => (Memref.whole Cert.Kernel.cc20_scratch0 : Memref Cert.Kernel.sig Kind.scVector Space.vmem Cert.Kernel.S8x3200 EltTy.f32)
local notation "a5" => (Memref.whole Cert.Kernel.cc20_scratch1 : Memref Cert.Kernel.sig Kind.scVector Space.vmem Cert.Kernel.S8x3200 EltTy.f32)
local notation "a6" => (Memref.whole Cert.Kernel.cc20_scratch2 : Memref Cert.Kernel.sig Kind.scVector Space.vmem Cert.Kernel.S25600 EltTy.f32)
local notation "a7" => (Memref.whole Cert.Kernel.cc20_scratch3 : Memref Cert.Kernel.sig Kind.scVector Space.vmem Cert.Kernel.S25600 EltTy.f32)

variable [FloatOps F]

section Tile

variable (d : Dev nD) (L : grid20.Coords)

abbrev cV (L : grid20.Coords) : Fin τ.nSC := (L 0).castLE hcore20
abbrev jV (L : grid20.Coords) : Fin τ.nSub := (L 1).castLE hsub20
abbrev thr (d : Dev nD) (L : grid20.Coords) : Thread nD τ := V d (cV L) (jV L)

/-- The tile's number 2·s + c, and whether it has sixteen pieces (numbers below 20) or fifteen. -/
abbrev wid (L : grid20.Coords) : ℕ := 2 * (L 1).val + (L 0).val
abbrev big (L : grid20.Coords) : Prop := wid L < 20

omit [FloatOps F] in
theorem wid_lt (L : grid20.Coords) : wid L < 32 := by
  have h0 : (L 0).val < 2 := (L 0).isLt
  have h1 : (L 1).val < 16 := (L 1).isLt
  unfold wid; omega

/-- Piece `n` of the tile exists: `n < 15`, or `n = 15` on a tile with sixteen pieces. It is the piece number
    `wid + 32·n < 500` of the row. -/
def valid (L : grid20.Coords) (n : ℕ) : Prop := n < 15 ∨ (n = 15 ∧ big L)
instance (L : grid20.Coords) (n : ℕ) : Decidable (valid L n) := by unfold valid big; infer_instance

omit [FloatOps F] in
theorem valid_iff (L : grid20.Coords) (n : ℕ) : valid L n ↔ wid L + 32 * n < 500 := by
  have := wid_lt L; unfold valid big; omega

/-- Where piece `n` starts in the row (clamped to the last piece of the row, so that the rectangle is in bounds for
    every `n`; for a valid piece the clamp is idle). -/
abbrev pos (L : grid20.Coords) (n : ℕ) : ℕ := 3200 * min (wid L + 32 * n) 499

omit [FloatOps F] in
theorem pos_valid {L : grid20.Coords} {n : ℕ} (h : valid L n) : pos L n = 6400 * (L 1).val + 3200 * (L 0).val + 102400 * n := by
  have := (valid_iff L n).mp h; unfold pos wid at *; omega

omit [FloatOps F] in
theorem in_inb (L : grid20.Coords) (n : ℕ) : ∀ a, (![20, pos L n] : Fin 2 → ℕ) a + S1x3200.size a ≤ S22x1600000.size a := by
  intro a; fin_cases a
  · show 20 + 1 ≤ 22; omega
  · show pos L n + 3200 ≤ 1600000; unfold pos; omega
omit [FloatOps F] in
theorem out_inb (L : grid20.Coords) (n : ℕ) : ∀ a, (![pos L n] : Fin 1 → ℕ) a + S3200.size a ≤ S1600000.size a := by
  intro a; fin_cases a
  show pos L n + 3200 ≤ 1600000; unfold pos; omega

/-- Piece `n` of row 20 of the transposed argument, and piece `n` of the flat result, as memrefs of the tile. -/
abbrev inM (L : grid20.Coords) (n : ℕ) : Memref sig .scVector .hbm S1x3200 .f32 :=
  (xtW).slice (Rect.unit (s := S22x1600000) ![20, pos L n] S1x3200.size (in_inb L n)) (fun _ => rfl)
abbrev outM (L : grid20.Coords) (n : ℕ) : Memref sig .scVector .hbm S3200 .f32 :=
  (oW).slice (Rect.unit (s := S1600000) ![pos L n] S3200.size (out_inb L n)) (fun _ => rfl)

/-! The program's own slices are these pieces: by the closed forms of its offset functions. -/

omit [FloatOps F] in
theorem off2 {a b : ℕ} (h : a = b) : (![20, a] : Fin 2 → ℕ) = ![20, b] := by rw [h]
omit [FloatOps F] in
theorem off1' {a b : ℕ} (h : a = b) : (![a] : Fin 1 → ℕ) = ![b] := by rw [h]

omit [FloatOps F] in
theorem off_in0 (L : grid20.Coords) (h : valid L 0) : k20_off1 L 0#32 = ![20, pos L 0] :=
  (k20_off1_eq L 0).trans (off2 (by rw [pos_valid h]; simp))
omit [FloatOps F] in
theorem off_in1 (L : grid20.Coords) (h : valid L 1) : k20_off1 L 32#32 = ![20, pos L 1] :=
  (k20_off1_eq L 1).trans (off2 (by rw [pos_valid h]; simp))
omit [FloatOps F] in
theorem off_6 (L : grid20.Coords) (t : Fin k20_t1_loop.trips) (h : valid L (2 * t.val + 2)) : k20_off6 L t = ![20, pos L (2 * t.val + 2)] :=
  (k20_off6_eq L t).trans (off2 (by rw [pos_valid h]; omega))
omit [FloatOps F] in
theorem off_11 (L : grid20.Coords) (t : Fin k20_t1_loop.trips) (h : valid L (2 * t.val + 3)) : k20_off11 L t = ![20, pos L (2 * t.val + 3)] :=
  (k20_off11_eq L t).trans (off2 (by rw [pos_valid h]; omega))
omit [FloatOps F] in
theorem off_5 (L : grid20.Coords) (t : Fin k20_t1_loop.trips) (h : valid L (2 * t.val)) : k20_off5 L t = ![pos L (2 * t.val)] :=
  (k20_off5_eq L t).trans (off1' (by rw [pos_valid h]; omega))
omit [FloatOps F] in
theorem off_10 (L : grid20.Coords) (t : Fin k20_t1_loop.trips) (h : valid L (2 * t.val + 1)) : k20_off10 L t = ![pos L (2 * t.val + 1)] :=
  (k20_off10_eq L t).trans (off1' (by rw [pos_valid h]; omega))

/-- Holding a 1 × 3200 window of the transposed argument, or a 3200 window of the result, by exactly its elements
    says the same whichever way the window's offsets are spelt. -/
theorem in_congr {off off' : Fin 2 → ℕ} (h : off = off') (p : ∀ a, off a + S1x3200.size a ≤ S22x1600000.size a)
    (p' : ∀ a, off' a + S1x3200.size a ≤ S22x1600000.size a) (f : Buf (Elt F) ((xtW).view.loc (thr d L))) :
    (((xtW).slice (Rect.unit (s := S22x1600000) off S1x3200.size p) (fun _ => rfl)).view.loc (thr d L)
        ↦[((xtW).slice (Rect.unit (s := S22x1600000) off S1x3200.size p) (fun _ => rfl)).view.set]{fullShare} f : sProp 𝕄)
      = (((xtW).slice (Rect.unit (s := S22x1600000) off' S1x3200.size p') (fun _ => rfl)).view.loc (thr d L)
        ↦[((xtW).slice (Rect.unit (s := S22x1600000) off' S1x3200.size p') (fun _ => rfl)).view.set]{fullShare} f) := by
  subst h; rfl
theorem out_congr {off off' : Fin 1 → ℕ} (h : off = off') (p : ∀ a, off a + S3200.size a ≤ S1600000.size a)
    (p' : ∀ a, off' a + S3200.size a ≤ S1600000.size a) (f : Buf (Elt F) ((oW).view.loc (thr d L))) :
    (((oW).slice (Rect.unit (s := S1600000) off S3200.size p) (fun _ => rfl)).view.loc (thr d L)
        ↦[((oW).slice (Rect.unit (s := S1600000) off S3200.size p) (fun _ => rfl)).view.set]{fullShare} f : sProp 𝕄)
      = (((oW).slice (Rect.unit (s := S1600000) off' S3200.size p') (fun _ => rfl)).view.loc (thr d L)
        ↦[((oW).slice (Rect.unit (s := S1600000) off' S3200.size p') (fun _ => rfl)).view.set]{fullShare} f) := by
  subst h; rfl

/-! The printed conditions, as facts about the trip and the tile. -/

omit [FloatOps F] in
theorem trips1 : k20_t1_loop.trips = 8 := by decide
omit [FloatOps F] in
theorem cond1_iff : ∀ (t : Fin k20_t1_loop.trips), k20_cond1 t = 1#1 ↔ 1 ≤ t.val := by decide +kernel
omit [FloatOps F] in
theorem cond2_iff : ∀ (L : grid20.Coords) (t : Fin k20_t1_loop.trips), k20_cond2 L t = 1#1 := by decide +kernel
omit [FloatOps F] in
theorem cond3_iff : ∀ (L : grid20.Coords) (t : Fin k20_t1_loop.trips), k20_cond3 L t = 1#1 ↔ t.val ≤ 6 := by decide +kernel
omit [FloatOps F] in
theorem cond4_iff : ∀ (t : Fin k20_t1_loop.trips), k20_cond4 t = 1#1 ↔ 1 ≤ t.val := by decide +kernel
omit [FloatOps F] in
theorem cond5_iff : ∀ (L : grid20.Coords) (t : Fin k20_t1_loop.trips), k20_cond5 L t = 1#1 ↔ (t.val ≤ 6 ∨ big L) := by decide +kernel
omit [FloatOps F] in
theorem cond6_iff : ∀ (L : grid20.Coords) (t : Fin k20_t1_loop.trips), k20_cond6 L t = 1#1 ↔ (t.val ≤ 5 ∨ (t.val = 6 ∧ big L)) := by decide +kernel
omit [FloatOps F] in
theorem cond7_iff : ∀ (L : grid20.Coords), k20_cond7 L = 1#1 := by decide +kernel
omit [FloatOps F] in
theorem cond8_iff : ∀ (L : grid20.Coords), k20_cond8 L = 1#1 ↔ big L := by decide +kernel

variable (O : CellTallies nD τ sig (HIx 22)) (W : Waits sig (HIx 22))
variable (fx : Buf (Elt F) ((xtW).view.loc (thr d L)))

abbrev NN : ℕ := 102400

/-- The 3200-element window of a flat staging buffer that a piece is written out from. -/
abbrev stg (a : Memref sig .scVector .vmem S25600 .f32) : Memref sig .scVector .vmem S3200 .f32 :=
  a.slice (Rect.unit (s := S25600) ![0] S3200.size inb_S25600_S3200_0) (fun _ => rfl)

/-- Piece `n` of the argument row held by exactly its elements, at the argument's contents; piece `n` of the result
    held by exactly its elements, at some contents. -/
abbrev xtPiece (n : ℕ) : sProp 𝕄 := (inM L n).view.loc (thr d L) ↦[(inM L n).view.set]{fullShare} fx
abbrev oPiece (n : ℕ) : sProp 𝕄 := iprop(∃ f, (outM L n).view.loc (thr d L) ↦[(outM L n).view.set]{fullShare} f)

/-- The lane-copy loop of a slot: the staging row keeps its contents, the flat staging buffer holds some contents. -/
def laneInv0 (g4 : Buf (Elt F) ((a4).view.loc (thr d L))) (_ : ℕ) (_ : PUnit) : sProp 𝕄 :=
  iprop(((a4).view.loc (thr d L) ↦{fullShare} g4) ∗ (∃ g, (a6).view.loc (thr d L) ↦{fullShare} g))
def laneInv1 (g5 : Buf (Elt F) ((a5).view.loc (thr d L))) (_ : ℕ) (_ : PUnit) : sProp 𝕄 :=
  iprop(((a5).view.loc (thr d L) ↦{fullShare} g5) ∗ (∃ g, (a7).view.loc (thr d L) ↦{fullShare} g))

/-- A fetch slot before trip work on piece `n`: the piece's fetch in flight (it will hand back the staging row at some
    contents, and the piece), or, when there is no such piece, the slot idle. -/
def inSlot (a : Memref sig .scVector .vmem S8x3200 .f32) (sm : DmaSem sig) (n : ℕ) : sProp 𝕄 :=
  if valid L n then
    iprop(∃ g, Transfers.Flight countersEmb (thr d L) (SemLoc.dma sm) (default : HIx 22) NN
      iprop((a.view.loc (thr d L) ↦{fullShare} g) ∗ xtPiece d L fx n))
  else iprop((∃ g, a.view.loc (thr d L) ↦{fullShare} g) ∗ semVal (thr d L, SemLoc.dma sm) 0)

/-- A write-out slot before trip work on piece `m`: piece `m - 2`'s write-out in flight (it will hand back that piece
    of the result at some contents, and the staging window), the rest of the staging buffer beside it; or idle. -/
def outSlot (a : Memref sig .scVector .vmem S25600 .f32) (sm : DmaSem sig) (m : ℕ) : sProp 𝕄 :=
  if 2 ≤ m ∧ valid L (m - 2) then
    iprop(∃ g, Transfers.Flight countersEmb (thr d L) (SemLoc.dma sm) (default : HIx 22) NN
        iprop(oPiece d L (m - 2) ∗ ((stg a).view.loc (thr d L) ↦[(stg a).view.set]{fullShare} g))
      ∗ (a.view.loc (thr d L) ↦[Finset.univ \ (stg a).view.set]{fullShare} g))
  else iprop((∃ g, a.view.loc (thr d L) ↦{fullShare} g) ∗ semVal (thr d L, SemLoc.dma sm) 0)

/-- Piece `n` when it exists, nothing otherwise. -/
def xP (n : ℕ) : sProp 𝕄 := if valid L n then xtPiece d L fx n else iprop(emp)
def oP (n : ℕ) : sProp 𝕄 := if valid L n then oPiece d L n else iprop(emp)

/-- What the tile holds outside the slots before trip `t`: every piece of the argument row but those being fetched
    (`2t`, `2t + 1`), every piece of the result but those being written out (`2t - 2`, `2t - 1`). -/
def xSet (t : ℕ) : Finset ℕ := (Finset.range 18).filter fun n => n ≠ 2 * t ∧ n ≠ 2 * t + 1
def oSet (t : ℕ) : Finset ℕ := (Finset.range 18).filter fun n => n + 2 ≠ 2 * t ∧ n + 2 ≠ 2 * t + 1

def inv (t : ℕ) (_ : PUnit) : sProp 𝕄 :=
  iprop(Transfers.MayWaits (thr d L) (none : HIx 22) O
    ∗ (∃ W', ⌜∀ p ∈ W', p ∈ W ∨ p.2 = none⌝ ∗ owes (thr d L) O W')
    ∗ bigSep (xSet t) (xP d L fx) ∗ bigSep (oSet t) (oP d L)
    ∗ inSlot d L fx a4 cc20_scratch4.sem (2 * t) ∗ outSlot d L a6 cc20_scratch6.sem (2 * t)
    ∗ inSlot d L fx a5 cc20_scratch5.sem (2 * t + 1) ∗ outSlot d L a7 cc20_scratch7.sem (2 * t + 1))

omit [FloatOps F] in
theorem two_out {Φ : ℕ → sProp 𝕄} {s : Finset ℕ} {a b : ℕ} (ha : a ∈ s) (hb : b ∈ s) (hab : a ≠ b) :
    bigSep s Φ = iprop(Φ a ∗ Φ b ∗ bigSep ((s.erase a).erase b) Φ) := by
  rw [SparseCore.bigSep_erase' ha, SparseCore.bigSep_erase' (Finset.mem_erase.mpr ⟨fun e => hab e.symm, hb⟩)]

omit [FloatOps F] in
theorem range18_split : (Finset.range 18) = insert 0 (insert 1 (xSet 0)) := by decide

theorem xRange_split (v0 : valid L 0) (v1 : valid L 1) :
    bigSep (Finset.range 18) (xP d L fx) = iprop(xtPiece d L fx 0 ∗ xtPiece d L fx 1 ∗ bigSep (xSet 0) (xP d L fx)) := by
  rw [range18_split, SparseCore.bigSep_insert' (by decide), SparseCore.bigSep_insert' (by decide)]
  unfold xP; rw [if_pos v0, if_pos v1]
omit [FloatOps F] in
theorem oSet_zero : oSet 0 = Finset.range 18 := by decide

theorem inSlot_pos {a : Memref sig .scVector .vmem S8x3200 .f32} {sm : DmaSem sig} {n : ℕ} (v : valid L n) :
    inSlot d L fx a sm n = iprop(∃ g, Transfers.Flight countersEmb (thr d L) (SemLoc.dma sm) (default : HIx 22) NN
      iprop((a.view.loc (thr d L) ↦{fullShare} g) ∗ xtPiece d L fx n)) := by unfold inSlot; rw [if_pos v]
theorem inSlot_neg {a : Memref sig .scVector .vmem S8x3200 .f32} {sm : DmaSem sig} {n : ℕ} (v : ¬ valid L n) :
    inSlot d L fx a sm n = iprop((∃ g, a.view.loc (thr d L) ↦{fullShare} g) ∗ semVal (thr d L, SemLoc.dma sm) 0) := by
  unfold inSlot; rw [if_neg v]
theorem outSlot_pos {a : Memref sig .scVector .vmem S25600 .f32} {sm : DmaSem sig} {m : ℕ} (h : 2 ≤ m ∧ valid L (m - 2)) :
    outSlot (F := F) d L a sm m = iprop(∃ g, Transfers.Flight countersEmb (thr d L) (SemLoc.dma sm) (default : HIx 22) NN
        iprop(oPiece (F := F) d L (m - 2) ∗ ((stg a).view.loc (thr d L) ↦[(stg a).view.set]{fullShare} g))
      ∗ (a.view.loc (thr d L) ↦[Finset.univ \ (stg a).view.set]{fullShare} g)) := by unfold outSlot; rw [if_pos h]
theorem outSlot_neg {a : Memref sig .scVector .vmem S25600 .f32} {sm : DmaSem sig} {m : ℕ} (h : ¬ (2 ≤ m ∧ valid L (m - 2))) :
    outSlot (F := F) d L a sm m = iprop((∃ g, a.view.loc (thr d L) ↦{fullShare} g) ∗ semVal (thr d L, SemLoc.dma sm) 0) := by
  unfold outSlot; rw [if_neg h]

/-- A fetch in flight, its source window spelt by any offsets equal to piece `n`'s, fills the fetch slot for `n`. -/
theorem fl_in {off : Fin 2 → ℕ} {n : ℕ} (h : off = ![20, pos L n]) (p : ∀ a, off a + S1x3200.size a ≤ S22x1600000.size a) (v : valid L n)
    (a : Memref sig .scVector .vmem S8x3200 .f32) (sm : DmaSem sig) :
    (iprop(∃ g, Transfers.Flight countersEmb (thr d L) (SemLoc.dma sm) (default : HIx 22) NN
        iprop((a.view.loc (thr d L) ↦{fullShare} g)
          ∗ (((xtW).slice (Rect.unit (s := S22x1600000) off S1x3200.size p) (fun _ => rfl)).view.loc (thr d L)
              ↦[((xtW).slice (Rect.unit (s := S22x1600000) off S1x3200.size p) (fun _ => rfl)).view.set]{fullShare} fx))) : sProp 𝕄)
      ⊢ inSlot d L fx a sm n := by
  rw [inSlot_pos d L fx v]
  iintro ⟨%g, H⟩
  have hD : (iprop((a.view.loc (thr d L) ↦{fullShare} g)
          ∗ (((xtW).slice (Rect.unit (s := S22x1600000) off S1x3200.size p) (fun _ => rfl)).view.loc (thr d L)
              ↦[((xtW).slice (Rect.unit (s := S22x1600000) off S1x3200.size p) (fun _ => rfl)).view.set]{fullShare} fx)) : sProp 𝕄)
      ⊢ iprop((a.view.loc (thr d L) ↦{fullShare} g) ∗ xtPiece d L fx n) := by
    iintro ⟨H1, H2⟩
    isplitl [H1]; · iexact H1
    iapply (Entails.of_eq (in_congr d L h p (in_inb L n) fx)); iexact H2
  iexists g
  iapply (Transfers.Flight_mono countersEmb (thr d L) hD); iexact H

/-- A write-out in flight, its destination window spelt by any offsets equal to piece `n`'s, with the rest of the
    staging buffer, fills the write-out slot for `n + 2`. -/
theorem fl_out {off : Fin 1 → ℕ} {n : ℕ} (h : off = ![pos L n]) (p : ∀ a, off a + S3200.size a ≤ S1600000.size a) (v : valid L n)
    (a : Memref sig .scVector .vmem S25600 .f32) (sm : DmaSem sig) :
    (iprop(∃ (f : Buf (Elt F) ((oW).view.loc (thr d L))) (g : Buf (Elt F) (a.view.loc (thr d L))), Transfers.Flight countersEmb (thr d L) (SemLoc.dma sm) (default : HIx 22) NN
        iprop((((oW).slice (Rect.unit (s := S1600000) off S3200.size p) (fun _ => rfl)).view.loc (thr d L)
              ↦[((oW).slice (Rect.unit (s := S1600000) off S3200.size p) (fun _ => rfl)).view.set]{fullShare} f)
          ∗ ((stg a).view.loc (thr d L) ↦[(stg a).view.set]{fullShare} g))
        ∗ (a.view.loc (thr d L) ↦[Finset.univ \ (stg a).view.set]{fullShare} g)) : sProp 𝕄)
      ⊢ outSlot (F := F) d L a sm (n + 2) := by
  rw [outSlot_pos (F := F) d L (m := n + 2) ⟨by omega, by simpa using v⟩]
  iintro ⟨%f, %g, H, R⟩
  have hD : (iprop((((oW).slice (Rect.unit (s := S1600000) off S3200.size p) (fun _ => rfl)).view.loc (thr d L)
              ↦[((oW).slice (Rect.unit (s := S1600000) off S3200.size p) (fun _ => rfl)).view.set]{fullShare} f)
          ∗ ((stg a).view.loc (thr d L) ↦[(stg a).view.set]{fullShare} g)) : sProp 𝕄)
      ⊢ iprop(oPiece (F := F) d L (n + 2 - 2) ∗ ((stg a).view.loc (thr d L) ↦[(stg a).view.set]{fullShare} g)) := by
    rw [Nat.add_sub_cancel]
    iintro ⟨H1, H2⟩
    isplitl [H1]
    · iexists f; iapply (Entails.of_eq (out_congr d L h p (out_inb L n) f)); iexact H1
    · iexact H2
  iexists g
  isplitl [H]
  · iapply (Transfers.Flight_mono countersEmb (thr d L) hD); iexact H
  · iexact R

/-! The pieces outside the slots, from one trip to the next. -/
def xCore (k : ℕ) : Finset ℕ := (Finset.range 18).filter fun n => n ≠ 2 * k ∧ n ≠ 2 * k + 1 ∧ n ≠ 2 * k + 2 ∧ n ≠ 2 * k + 3
def oCore (k : ℕ) : Finset ℕ := (Finset.range 18).filter fun n => n + 2 ≠ 2 * k ∧ n + 2 ≠ 2 * k + 1 ∧ n ≠ 2 * k ∧ n ≠ 2 * k + 1

omit [FloatOps F] in
theorem xSet_out (Φ : ℕ → sProp 𝕄) (k : ℕ) (hk : k < 8) : bigSep (xSet k) Φ = iprop(Φ (2 * k + 2) ∗ Φ (2 * k + 3) ∗ bigSep (xCore k) Φ) := by
  have e : ((xSet k).erase (2 * k + 2)).erase (2 * k + 3) = xCore k := by
    ext n; simp only [xSet, xCore, Finset.mem_erase, Finset.mem_filter, Finset.mem_range]; omega
  rw [← e]; exact two_out (by simp only [xSet, Finset.mem_filter, Finset.mem_range]; omega) (by simp only [xSet, Finset.mem_filter, Finset.mem_range]; omega) (by omega)
omit [FloatOps F] in
theorem xSet_in (Φ : ℕ → sProp 𝕄) (k : ℕ) (hk : k < 8) : bigSep (xSet (k + 1)) Φ = iprop(Φ (2 * k) ∗ Φ (2 * k + 1) ∗ bigSep (xCore k) Φ) := by
  have e : ((xSet (k + 1)).erase (2 * k)).erase (2 * k + 1) = xCore k := by
    ext n; simp only [xSet, xCore, Finset.mem_erase, Finset.mem_filter, Finset.mem_range]; omega
  rw [← e]; exact two_out (by simp only [xSet, Finset.mem_filter, Finset.mem_range]; omega) (by simp only [xSet, Finset.mem_filter, Finset.mem_range]; omega) (by omega)
omit [FloatOps F] in
theorem oSet_out (Φ : ℕ → sProp 𝕄) (k : ℕ) (hk : k < 8) : bigSep (oSet k) Φ = iprop(Φ (2 * k) ∗ Φ (2 * k + 1) ∗ bigSep (oCore k) Φ) := by
  have e : ((oSet k).erase (2 * k)).erase (2 * k + 1) = oCore k := by
    ext n; simp only [oSet, oCore, Finset.mem_erase, Finset.mem_filter, Finset.mem_range]; omega
  rw [← e]; exact two_out (by simp only [oSet, Finset.mem_filter, Finset.mem_range]; omega) (by simp only [oSet, Finset.mem_filter, Finset.mem_range]; omega) (by omega)
omit [FloatOps F] in
theorem oSet_in (Φ : ℕ → sProp 𝕄) (k : ℕ) (hk : k < 8) (hk1 : 1 ≤ k) :
    bigSep (oSet (k + 1)) Φ = iprop(Φ (2 * k - 2) ∗ Φ (2 * k - 1) ∗ bigSep (oCore k) Φ) := by
  have e : ((oSet (k + 1)).erase (2 * k - 2)).erase (2 * k - 1) = oCore k := by
    ext n; simp only [oSet, oCore, Finset.mem_erase, Finset.mem_filter, Finset.mem_range]; omega
  rw [← e]; exact two_out (by simp only [oSet, Finset.mem_filter, Finset.mem_range]; omega) (by simp only [oSet, Finset.mem_filter, Finset.mem_range]; omega) (by omega)

theorem xP_pos {n : ℕ} (v : valid L n) : xP d L fx n = xtPiece d L fx n := if_pos v
theorem oP_pos {n : ℕ} (v : valid L n) : oP (F := F) d L n = oPiece (F := F) d L n := if_pos v
theorem xP_neg {n : ℕ} (v : ¬ valid L n) : xP d L fx n = iprop(emp) := if_neg v
theorem oP_neg {n : ℕ} (v : ¬ valid L n) : oP (F := F) d L n = iprop(emp) := if_neg v

/-- Piece `n` of the result at its final contents: row 20 of the transposed argument. -/
def oQ (n : ℕ) : sProp 𝕄 :=
  if valid L n then (outM L n).view.loc (thr d L) ↦[(outM L n).view.set]{fullShare} (Cert.Spec.row 20 fx) else iprop(emp)

/-- What a tile is handed for the call: its pieces of row 20 of the transposed argument, at the argument's contents, and
    its pieces of the result at some contents. What it hands back: the same pieces of the argument, and its pieces of
    the result holding the row. -/
def goRes : sProp 𝕄 := iprop(bigSep (Finset.range 18) (xP d L fx) ∗ bigSep (Finset.range 18) (oP (F := F) d L))
def tdRes : sProp 𝕄 := iprop(bigSep (Finset.range 18) (xP d L fx) ∗ bigSep (Finset.range 18) (oQ d L fx))

end Tile

end Cert.Proof.TileB20

end
-- ==== Proof.TileB21Defs.lean ====
/-
  One vector subcore's task of copy kernel 21 (counting from 0): definitions. The task moves its pieces of row 21 of the
  transposed argument (pieces of 3200 consecutive elements, piece number 2·s + c + 32·n for the subcore (c, s) and
  n = 0, 1, … while that number is below 500) into the flat result: each piece is fetched into a staging row, copied
  16 lanes at a time into a flat staging buffer, and written out, two pieces in flight at a time. Here: the pieces as
  memrefs, the program's own spellings of them, the printed conditions as facts about the trip, the two slots' states
  between trips, and what the tile holds outside the slots.
-/
import proofs.«206869_g37898791420194_cont_8to1_b_558_20_alg».proof.Defs
import Idealize.ShloMosaic.Lib.SparseCore.Launch
import Idealize.ShloMosaic.Lib.StableHlo.Run
import Idealize.ShloMosaic.Lib.Pipeline.Kit
import Idealize.ShloMosaic.Lib.Tactic
import proofs.«206869_g37898791420194_cont_8to1_b_558_20_alg».proof.Proof.Gen.Kernel
import proofs.«206869_g37898791420194_cont_8to1_b_558_20_alg».proof.Proof.Gen.Kernel.Skeleton
import proofs.«206869_g37898791420194_cont_8to1_b_558_20_alg».proof.Proof.Spec

noncomputable section

namespace Cert.Proof.TileB21

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

abbrev ΛP : Labels := Pipeline.Sig Λ₀ (Fin 0) fun p => (pcfgs (F := F) p).Adm
abbrev K : SparseCore.Cfg τ sig (ΛP (F := F)) 22 := sc (F := F)
abbrev 𝒱₀ : Variants := Variants.none

abbrev UH : Type := URounds (GSem nD τ sig) ℕ
abbrev UU : Type := UH × Counters

local notation "𝕄" => MT nD τ sig (HIx 22) (Elt F) ℕ UU ℕ

local notation "xtW" => (Memref.whole Cert.Kernel.main_v0_scv : Memref Cert.Kernel.sig Kind.scVector Space.hbm Cert.Kernel.S22x1600000 EltTy.f32)
local notation "oW" => (Memref.whole Cert.Kernel.main_v22_scv : Memref Cert.Kernel.sig Kind.scVector Space.hbm Cert.Kernel.S1600000 EltTy.f32)
local notation "a4" => (Memref.whole Cert.Kernel.cc21_scratch0 : Memref Cert.Kernel.sig Kind.scVector Space.vmem Cert.Kernel.S8x3200 EltTy.f32)
local notation "a5" => (Memref.whole Cert.Kernel.cc21_scratch1 : Memref Cert.Kernel.sig Kind.scVector Space.vmem Cert.Kernel.S8x3200 EltTy.f32)
local notation "a6" => (Memref.whole Cert.Kernel.cc21_scratch2 : Memref Cert.Kernel.sig Kind.scVector Space.vmem Cert.Kernel.S25600 EltTy.f32)
local notation "a7" => (Memref.whole Cert.Kernel.cc21_scratch3 : Memref Cert.Kernel.sig Kind.scVector Space.vmem Cert.Kernel.S25600 EltTy.f32)

variable [FloatOps F]

section Tile

variable (d : Dev nD) (L : grid21.Coords)

abbrev cV (L : grid21.Coords) : Fin τ.nSC := (L 0).castLE hcore21
abbrev jV (L : grid21.Coords) : Fin τ.nSub := (L 1).castLE hsub21
abbrev thr (d : Dev nD) (L : grid21.Coords) : Thread nD τ := V d (cV L) (jV L)

/-- The tile's number 2·s + c, and whether it has sixteen pieces (numbers below 20) or fifteen. -/
abbrev wid (L : grid21.Coords) : ℕ := 2 * (L 1).val + (L 0).val
abbrev big (L : grid21.Coords) : Prop := wid L < 20

omit [FloatOps F] in
theorem wid_lt (L : grid21.Coords) : wid L < 32 := by
  have h0 : (L 0).val < 2 := (L 0).isLt
  have h1 : (L 1).val < 16 := (L 1).isLt
  unfold wid; omega

/-- Piece `n` of the tile exists: `n < 15`, or `n = 15` on a tile with sixteen pieces. It is the piece number
    `wid + 32·n < 500` of the row. -/
def valid (L : grid21.Coords) (n : ℕ) : Prop := n < 15 ∨ (n = 15 ∧ big L)
instance (L : grid21.Coords) (n : ℕ) : Decidable (valid L n) := by unfold valid big; infer_instance

omit [FloatOps F] in
theorem valid_iff (L : grid21.Coords) (n : ℕ) : valid L n ↔ wid L + 32 * n < 500 := by
  have := wid_lt L; unfold valid big; omega

/-- Where piece `n` starts in the row (clamped to the last piece of the row, so that the rectangle is in bounds for
    every `n`; for a valid piece the clamp is idle). -/
abbrev pos (L : grid21.Coords) (n : ℕ) : ℕ := 3200 * min (wid L + 32 * n) 499

omit [FloatOps F] in
theorem pos_valid {L : grid21.Coords} {n : ℕ} (h : valid L n) : pos L n = 6400 * (L 1).val + 3200 * (L 0).val + 102400 * n := by
  have := (valid_iff L n).mp h; unfold pos wid at *; omega

omit [FloatOps F] in
theorem in_inb (L : grid21.Coords) (n : ℕ) : ∀ a, (![21, pos L n] : Fin 2 → ℕ) a + S1x3200.size a ≤ S22x1600000.size a := by
  intro a; fin_cases a
  · show 21 + 1 ≤ 22; omega
  · show pos L n + 3200 ≤ 1600000; unfold pos; omega
omit [FloatOps F] in
theorem out_inb (L : grid21.Coords) (n : ℕ) : ∀ a, (![pos L n] : Fin 1 → ℕ) a + S3200.size a ≤ S1600000.size a := by
  intro a; fin_cases a
  show pos L n + 3200 ≤ 1600000; unfold pos; omega

/-- Piece `n` of row 21 of the transposed argument, and piece `n` of the flat result, as memrefs of the tile. -/
abbrev inM (L : grid21.Coords) (n : ℕ) : Memref sig .scVector .hbm S1x3200 .f32 :=
  (xtW).slice (Rect.unit (s := S22x1600000) ![21, pos L n] S1x3200.size (in_inb L n)) (fun _ => rfl)
abbrev outM (L : grid21.Coords) (n : ℕ) : Memref sig .scVector .hbm S3200 .f32 :=
  (oW).slice (Rect.unit (s := S1600000) ![pos L n] S3200.size (out_inb L n)) (fun _ => rfl)

/-! The program's own slices are these pieces: by the closed forms of its offset functions. -/

omit [FloatOps F] in
theorem off2 {a b : ℕ} (h : a = b) : (![21, a] : Fin 2 → ℕ) = ![21, b] := by rw [h]
omit [FloatOps F] in
theorem off1' {a b : ℕ} (h : a = b) : (![a] : Fin 1 → ℕ) = ![b] := by rw [h]

omit [FloatOps F] in
theorem off_in0 (L : grid21.Coords) (h : valid L 0) : k21_off1 L 0#32 = ![21, pos L 0] :=
  (k21_off1_eq L 0).trans (off2 (by rw [pos_valid h]; simp))
omit [FloatOps F] in
theorem off_in1 (L : grid21.Coords) (h : valid L 1) : k21_off1 L 32#32 = ![21, pos L 1] :=
  (k21_off1_eq L 1).trans (off2 (by rw [pos_valid h]; simp))
omit [FloatOps F] in
theorem off_6 (L : grid21.Coords) (t : Fin k21_t1_loop.trips) (h : valid L (2 * t.val + 2)) : k21_off6 L t = ![21, pos L (2 * t.val + 2)] :=
  (k21_off6_eq L t).trans (off2 (by rw [pos_valid h]; omega))
omit [FloatOps F] in
theorem off_11 (L : grid21.Coords) (t : Fin k21_t1_loop.trips) (h : valid L (2 * t.val + 3)) : k21_off11 L t = ![21, pos L (2 * t.val + 3)] :=
  (k21_off11_eq L t).trans (off2 (by rw [pos_valid h]; omega))
omit [FloatOps F] in
theorem off_5 (L : grid21.Coords) (t : Fin k21_t1_loop.trips) (h : valid L (2 * t.val)) : k21_off5 L t = ![pos L (2 * t.val)] :=
  (k21_off5_eq L t).trans (off1' (by rw [pos_valid h]; omega))
omit [FloatOps F] in
theorem off_10 (L : grid21.Coords) (t : Fin k21_t1_loop.trips) (h : valid L (2 * t.val + 1)) : k21_off10 L t = ![pos L (2 * t.val + 1)] :=
  (k21_off10_eq L t).trans (off1' (by rw [pos_valid h]; omega))

/-- Holding a 1 × 3200 window of the transposed argument, or a 3200 window of the result, by exactly its elements
    says the same whichever way the window's offsets are spelt. -/
theorem in_congr {off off' : Fin 2 → ℕ} (h : off = off') (p : ∀ a, off a + S1x3200.size a ≤ S22x1600000.size a)
    (p' : ∀ a, off' a + S1x3200.size a ≤ S22x1600000.size a) (f : Buf (Elt F) ((xtW).view.loc (thr d L))) :
    (((xtW).slice (Rect.unit (s := S22x1600000) off S1x3200.size p) (fun _ => rfl)).view.loc (thr d L)
        ↦[((xtW).slice (Rect.unit (s := S22x1600000) off S1x3200.size p) (fun _ => rfl)).view.set]{fullShare} f : sProp 𝕄)
      = (((xtW).slice (Rect.unit (s := S22x1600000) off' S1x3200.size p') (fun _ => rfl)).view.loc (thr d L)
        ↦[((xtW).slice (Rect.unit (s := S22x1600000) off' S1x3200.size p') (fun _ => rfl)).view.set]{fullShare} f) := by
  subst h; rfl
theorem out_congr {off off' : Fin 1 → ℕ} (h : off = off') (p : ∀ a, off a + S3200.size a ≤ S1600000.size a)
    (p' : ∀ a, off' a + S3200.size a ≤ S1600000.size a) (f : Buf (Elt F) ((oW).view.loc (thr d L))) :
    (((oW).slice (Rect.unit (s := S1600000) off S3200.size p) (fun _ => rfl)).view.loc (thr d L)
        ↦[((oW).slice (Rect.unit (s := S1600000) off S3200.size p) (fun _ => rfl)).view.set]{fullShare} f : sProp 𝕄)
      = (((oW).slice (Rect.unit (s := S1600000) off' S3200.size p') (fun _ => rfl)).view.loc (thr d L)
        ↦[((oW).slice (Rect.unit (s := S1600000) off' S3200.size p') (fun _ => rfl)).view.set]{fullShare} f) := by
  subst h; rfl

/-! The printed conditions, as facts about the trip and the tile. -/

omit [FloatOps F] in
theorem trips1 : k21_t1_loop.trips = 8 := by decide
omit [FloatOps F] in
theorem cond1_iff : ∀ (t : Fin k21_t1_loop.trips), k21_cond1 t = 1#1 ↔ 1 ≤ t.val := by decide +kernel
omit [FloatOps F] in
theorem cond2_iff : ∀ (L : grid21.Coords) (t : Fin k21_t1_loop.trips), k21_cond2 L t = 1#1 := by decide +kernel
omit [FloatOps F] in
theorem cond3_iff : ∀ (L : grid21.Coords) (t : Fin k21_t1_loop.trips), k21_cond3 L t = 1#1 ↔ t.val ≤ 6 := by decide +kernel
omit [FloatOps F] in
theorem cond4_iff : ∀ (t : Fin k21_t1_loop.trips), k21_cond4 t = 1#1 ↔ 1 ≤ t.val := by decide +kernel
omit [FloatOps F] in
theorem cond5_iff : ∀ (L : grid21.Coords) (t : Fin k21_t1_loop.trips), k21_cond5 L t = 1#1 ↔ (t.val ≤ 6 ∨ big L) := by decide +kernel
omit [FloatOps F] in
theorem cond6_iff : ∀ (L : grid21.Coords) (t : Fin k21_t1_loop.trips), k21_cond6 L t = 1#1 ↔ (t.val ≤ 5 ∨ (t.val = 6 ∧ big L)) := by decide +kernel
omit [FloatOps F] in
theorem cond7_iff : ∀ (L : grid21.Coords), k21_cond7 L = 1#1 := by decide +kernel
omit [FloatOps F] in
theorem cond8_iff : ∀ (L : grid21.Coords), k21_cond8 L = 1#1 ↔ big L := by decide +kernel

variable (O : CellTallies nD τ sig (HIx 22)) (W : Waits sig (HIx 22))
variable (fx : Buf (Elt F) ((xtW).view.loc (thr d L)))

abbrev NN : ℕ := 102400

/-- The 3200-element window of a flat staging buffer that a piece is written out from. -/
abbrev stg (a : Memref sig .scVector .vmem S25600 .f32) : Memref sig .scVector .vmem S3200 .f32 :=
  a.slice (Rect.unit (s := S25600) ![0] S3200.size inb_S25600_S3200_0) (fun _ => rfl)

/-- Piece `n` of the argument row held by exactly its elements, at the argument's contents; piece `n` of the result
    held by exactly its elements, at some contents. -/
abbrev xtPiece (n : ℕ) : sProp 𝕄 := (inM L n).view.loc (thr d L) ↦[(inM L n).view.set]{fullShare} fx
abbrev oPiece (n : ℕ) : sProp 𝕄 := iprop(∃ f, (outM L n).view.loc (thr d L) ↦[(outM L n).view.set]{fullShare} f)

/-- The lane-copy loop of a slot: the staging row keeps its contents, the flat staging buffer holds some contents. -/
def laneInv0 (g4 : Buf (Elt F) ((a4).view.loc (thr d L))) (_ : ℕ) (_ : PUnit) : sProp 𝕄 :=
  iprop(((a4).view.loc (thr d L) ↦{fullShare} g4) ∗ (∃ g, (a6).view.loc (thr d L) ↦{fullShare} g))
def laneInv1 (g5 : Buf (Elt F) ((a5).view.loc (thr d L))) (_ : ℕ) (_ : PUnit) : sProp 𝕄 :=
  iprop(((a5).view.loc (thr d L) ↦{fullShare} g5) ∗ (∃ g, (a7).view.loc (thr d L) ↦{fullShare} g))

/-- A fetch slot before trip work on piece `n`: the piece's fetch in flight (it will hand back the staging row at some
    contents, and the piece), or, when there is no such piece, the slot idle. -/
def inSlot (a : Memref sig .scVector .vmem S8x3200 .f32) (sm : DmaSem sig) (n : ℕ) : sProp 𝕄 :=
  if valid L n then
    iprop(∃ g, Transfers.Flight countersEmb (thr d L) (SemLoc.dma sm) (default : HIx 22) NN
      iprop((a.view.loc (thr d L) ↦{fullShare} g) ∗ xtPiece d L fx n))
  else iprop((∃ g, a.view.loc (thr d L) ↦{fullShare} g) ∗ semVal (thr d L, SemLoc.dma sm) 0)

/-- A write-out slot before trip work on piece `m`: piece `m - 2`'s write-out in flight (it will hand back that piece
    of the result at some contents, and the staging window), the rest of the staging buffer beside it; or idle. -/
def outSlot (a : Memref sig .scVector .vmem S25600 .f32) (sm : DmaSem sig) (m : ℕ) : sProp 𝕄 :=
  if 2 ≤ m ∧ valid L (m - 2) then
    iprop(∃ g, Transfers.Flight countersEmb (thr d L) (SemLoc.dma sm) (default : HIx 22) NN
        iprop(oPiece d L (m - 2) ∗ ((stg a).view.loc (thr d L) ↦[(stg a).view.set]{fullShare} g))
      ∗ (a.view.loc (thr d L) ↦[Finset.univ \ (stg a).view.set]{fullShare} g))
  else iprop((∃ g, a.view.loc (thr d L) ↦{fullShare} g) ∗ semVal (thr d L, SemLoc.dma sm) 0)

/-- Piece `n` when it exists, nothing otherwise. -/
def xP (n : ℕ) : sProp 𝕄 := if valid L n then xtPiece d L fx n else iprop(emp)
def oP (n : ℕ) : sProp 𝕄 := if valid L n then oPiece d L n else iprop(emp)

/-- What the tile holds outside the slots before trip `t`: every piece of the argument row but those being fetched
    (`2t`, `2t + 1`), every piece of the result but those being written out (`2t - 2`, `2t - 1`). -/
def xSet (t : ℕ) : Finset ℕ := (Finset.range 18).filter fun n => n ≠ 2 * t ∧ n ≠ 2 * t + 1
def oSet (t : ℕ) : Finset ℕ := (Finset.range 18).filter fun n => n + 2 ≠ 2 * t ∧ n + 2 ≠ 2 * t + 1

def inv (t : ℕ) (_ : PUnit) : sProp 𝕄 :=
  iprop(Transfers.MayWaits (thr d L) (none : HIx 22) O
    ∗ (∃ W', ⌜∀ p ∈ W', p ∈ W ∨ p.2 = none⌝ ∗ owes (thr d L) O W')
    ∗ bigSep (xSet t) (xP d L fx) ∗ bigSep (oSet t) (oP d L)
    ∗ inSlot d L fx a4 cc21_scratch4.sem (2 * t) ∗ outSlot d L a6 cc21_scratch6.sem (2 * t)
    ∗ inSlot d L fx a5 cc21_scratch5.sem (2 * t + 1) ∗ outSlot d L a7 cc21_scratch7.sem (2 * t + 1))

omit [FloatOps F] in
theorem two_out {Φ : ℕ → sProp 𝕄} {s : Finset ℕ} {a b : ℕ} (ha : a ∈ s) (hb : b ∈ s) (hab : a ≠ b) :
    bigSep s Φ = iprop(Φ a ∗ Φ b ∗ bigSep ((s.erase a).erase b) Φ) := by
  rw [SparseCore.bigSep_erase' ha, SparseCore.bigSep_erase' (Finset.mem_erase.mpr ⟨fun e => hab e.symm, hb⟩)]

omit [FloatOps F] in
theorem range18_split : (Finset.range 18) = insert 0 (insert 1 (xSet 0)) := by decide

theorem xRange_split (v0 : valid L 0) (v1 : valid L 1) :
    bigSep (Finset.range 18) (xP d L fx) = iprop(xtPiece d L fx 0 ∗ xtPiece d L fx 1 ∗ bigSep (xSet 0) (xP d L fx)) := by
  rw [range18_split, SparseCore.bigSep_insert' (by decide), SparseCore.bigSep_insert' (by decide)]
  unfold xP; rw [if_pos v0, if_pos v1]
omit [FloatOps F] in
theorem oSet_zero : oSet 0 = Finset.range 18 := by decide

theorem inSlot_pos {a : Memref sig .scVector .vmem S8x3200 .f32} {sm : DmaSem sig} {n : ℕ} (v : valid L n) :
    inSlot d L fx a sm n = iprop(∃ g, Transfers.Flight countersEmb (thr d L) (SemLoc.dma sm) (default : HIx 22) NN
      iprop((a.view.loc (thr d L) ↦{fullShare} g) ∗ xtPiece d L fx n)) := by unfold inSlot; rw [if_pos v]
theorem inSlot_neg {a : Memref sig .scVector .vmem S8x3200 .f32} {sm : DmaSem sig} {n : ℕ} (v : ¬ valid L n) :
    inSlot d L fx a sm n = iprop((∃ g, a.view.loc (thr d L) ↦{fullShare} g) ∗ semVal (thr d L, SemLoc.dma sm) 0) := by
  unfold inSlot; rw [if_neg v]
theorem outSlot_pos {a : Memref sig .scVector .vmem S25600 .f32} {sm : DmaSem sig} {m : ℕ} (h : 2 ≤ m ∧ valid L (m - 2)) :
    outSlot (F := F) d L a sm m = iprop(∃ g, Transfers.Flight countersEmb (thr d L) (SemLoc.dma sm) (default : HIx 22) NN
        iprop(oPiece (F := F) d L (m - 2) ∗ ((stg a).view.loc (thr d L) ↦[(stg a).view.set]{fullShare} g))
      ∗ (a.view.loc (thr d L) ↦[Finset.univ \ (stg a).view.set]{fullShare} g)) := by unfold outSlot; rw [if_pos h]
theorem outSlot_neg {a : Memref sig .scVector .vmem S25600 .f32} {sm : DmaSem sig} {m : ℕ} (h : ¬ (2 ≤ m ∧ valid L (m - 2))) :
    outSlot (F := F) d L a sm m = iprop((∃ g, a.view.loc (thr d L) ↦{fullShare} g) ∗ semVal (thr d L, SemLoc.dma sm) 0) := by
  unfold outSlot; rw [if_neg h]

/-- A fetch in flight, its source window spelt by any offsets equal to piece `n`'s, fills the fetch slot for `n`. -/
theorem fl_in {off : Fin 2 → ℕ} {n : ℕ} (h : off = ![21, pos L n]) (p : ∀ a, off a + S1x3200.size a ≤ S22x1600000.size a) (v : valid L n)
    (a : Memref sig .scVector .vmem S8x3200 .f32) (sm : DmaSem sig) :
    (iprop(∃ g, Transfers.Flight countersEmb (thr d L) (SemLoc.dma sm) (default : HIx 22) NN
        iprop((a.view.loc (thr d L) ↦{fullShare} g)
          ∗ (((xtW).slice (Rect.unit (s := S22x1600000) off S1x3200.size p) (fun _ => rfl)).view.loc (thr d L)
              ↦[((xtW).slice (Rect.unit (s := S22x1600000) off S1x3200.size p) (fun _ => rfl)).view.set]{fullShare} fx))) : sProp 𝕄)
      ⊢ inSlot d L fx a sm n := by
  rw [inSlot_pos d L fx v]
  iintro ⟨%g, H⟩
  have hD : (iprop((a.view.loc (thr d L) ↦{fullShare} g)
          ∗ (((xtW).slice (Rect.unit (s := S22x1600000) off S1x3200.size p) (fun _ => rfl)).view.loc (thr d L)
              ↦[((xtW).slice (Rect.unit (s := S22x1600000) off S1x3200.size p) (fun _ => rfl)).view.set]{fullShare} fx)) : sProp 𝕄)
      ⊢ iprop((a.view.loc (thr d L) ↦{fullShare} g) ∗ xtPiece d L fx n) := by
    iintro ⟨H1, H2⟩
    isplitl [H1]; · iexact H1
    iapply (Entails.of_eq (in_congr d L h p (in_inb L n) fx)); iexact H2
  iexists g
  iapply (Transfers.Flight_mono countersEmb (thr d L) hD); iexact H

/-- A write-out in flight, its destination window spelt by any offsets equal to piece `n`'s, with the rest of the
    staging buffer, fills the write-out slot for `n + 2`. -/
theorem fl_out {off : Fin 1 → ℕ} {n : ℕ} (h : off = ![pos L n]) (p : ∀ a, off a + S3200.size a ≤ S1600000.size a) (v : valid L n)
    (a : Memref sig .scVector .vmem S25600 .f32) (sm : DmaSem sig) :
    (iprop(∃ (f : Buf (Elt F) ((oW).view.loc (thr d L))) (g : Buf (Elt F) (a.view.loc (thr d L))), Transfers.Flight countersEmb (thr d L) (SemLoc.dma sm) (default : HIx 22) NN
        iprop((((oW).slice (Rect.unit (s := S1600000) off S3200.size p) (fun _ => rfl)).view.loc (thr d L)
              ↦[((oW).slice (Rect.unit (s := S1600000) off S3200.size p) (fun _ => rfl)).view.set]{fullShare} f)
          ∗ ((stg a).view.loc (thr d L) ↦[(stg a).view.set]{fullShare} g))
        ∗ (a.view.loc (thr d L) ↦[Finset.univ \ (stg a).view.set]{fullShare} g)) : sProp 𝕄)
      ⊢ outSlot (F := F) d L a sm (n + 2) := by
  rw [outSlot_pos (F := F) d L (m := n + 2) ⟨by omega, by simpa using v⟩]
  iintro ⟨%f, %g, H, R⟩
  have hD : (iprop((((oW).slice (Rect.unit (s := S1600000) off S3200.size p) (fun _ => rfl)).view.loc (thr d L)
              ↦[((oW).slice (Rect.unit (s := S1600000) off S3200.size p) (fun _ => rfl)).view.set]{fullShare} f)
          ∗ ((stg a).view.loc (thr d L) ↦[(stg a).view.set]{fullShare} g)) : sProp 𝕄)
      ⊢ iprop(oPiece (F := F) d L (n + 2 - 2) ∗ ((stg a).view.loc (thr d L) ↦[(stg a).view.set]{fullShare} g)) := by
    rw [Nat.add_sub_cancel]
    iintro ⟨H1, H2⟩
    isplitl [H1]
    · iexists f; iapply (Entails.of_eq (out_congr d L h p (out_inb L n) f)); iexact H1
    · iexact H2
  iexists g
  isplitl [H]
  · iapply (Transfers.Flight_mono countersEmb (thr d L) hD); iexact H
  · iexact R

/-! The pieces outside the slots, from one trip to the next. -/
def xCore (k : ℕ) : Finset ℕ := (Finset.range 18).filter fun n => n ≠ 2 * k ∧ n ≠ 2 * k + 1 ∧ n ≠ 2 * k + 2 ∧ n ≠ 2 * k + 3
def oCore (k : ℕ) : Finset ℕ := (Finset.range 18).filter fun n => n + 2 ≠ 2 * k ∧ n + 2 ≠ 2 * k + 1 ∧ n ≠ 2 * k ∧ n ≠ 2 * k + 1

omit [FloatOps F] in
theorem xSet_out (Φ : ℕ → sProp 𝕄) (k : ℕ) (hk : k < 8) : bigSep (xSet k) Φ = iprop(Φ (2 * k + 2) ∗ Φ (2 * k + 3) ∗ bigSep (xCore k) Φ) := by
  have e : ((xSet k).erase (2 * k + 2)).erase (2 * k + 3) = xCore k := by
    ext n; simp only [xSet, xCore, Finset.mem_erase, Finset.mem_filter, Finset.mem_range]; omega
  rw [← e]; exact two_out (by simp only [xSet, Finset.mem_filter, Finset.mem_range]; omega) (by simp only [xSet, Finset.mem_filter, Finset.mem_range]; omega) (by omega)
omit [FloatOps F] in
theorem xSet_in (Φ : ℕ → sProp 𝕄) (k : ℕ) (hk : k < 8) : bigSep (xSet (k + 1)) Φ = iprop(Φ (2 * k) ∗ Φ (2 * k + 1) ∗ bigSep (xCore k) Φ) := by
  have e : ((xSet (k + 1)).erase (2 * k)).erase (2 * k + 1) = xCore k := by
    ext n; simp only [xSet, xCore, Finset.mem_erase, Finset.mem_filter, Finset.mem_range]; omega
  rw [← e]; exact two_out (by simp only [xSet, Finset.mem_filter, Finset.mem_range]; omega) (by simp only [xSet, Finset.mem_filter, Finset.mem_range]; omega) (by omega)
omit [FloatOps F] in
theorem oSet_out (Φ : ℕ → sProp 𝕄) (k : ℕ) (hk : k < 8) : bigSep (oSet k) Φ = iprop(Φ (2 * k) ∗ Φ (2 * k + 1) ∗ bigSep (oCore k) Φ) := by
  have e : ((oSet k).erase (2 * k)).erase (2 * k + 1) = oCore k := by
    ext n; simp only [oSet, oCore, Finset.mem_erase, Finset.mem_filter, Finset.mem_range]; omega
  rw [← e]; exact two_out (by simp only [oSet, Finset.mem_filter, Finset.mem_range]; omega) (by simp only [oSet, Finset.mem_filter, Finset.mem_range]; omega) (by omega)
omit [FloatOps F] in
theorem oSet_in (Φ : ℕ → sProp 𝕄) (k : ℕ) (hk : k < 8) (hk1 : 1 ≤ k) :
    bigSep (oSet (k + 1)) Φ = iprop(Φ (2 * k - 2) ∗ Φ (2 * k - 1) ∗ bigSep (oCore k) Φ) := by
  have e : ((oSet (k + 1)).erase (2 * k - 2)).erase (2 * k - 1) = oCore k := by
    ext n; simp only [oSet, oCore, Finset.mem_erase, Finset.mem_filter, Finset.mem_range]; omega
  rw [← e]; exact two_out (by simp only [oSet, Finset.mem_filter, Finset.mem_range]; omega) (by simp only [oSet, Finset.mem_filter, Finset.mem_range]; omega) (by omega)

theorem xP_pos {n : ℕ} (v : valid L n) : xP d L fx n = xtPiece d L fx n := if_pos v
theorem oP_pos {n : ℕ} (v : valid L n) : oP (F := F) d L n = oPiece (F := F) d L n := if_pos v
theorem xP_neg {n : ℕ} (v : ¬ valid L n) : xP d L fx n = iprop(emp) := if_neg v
theorem oP_neg {n : ℕ} (v : ¬ valid L n) : oP (F := F) d L n = iprop(emp) := if_neg v

/-- Piece `n` of the result at its final contents: row 21 of the transposed argument. -/
def oQ (n : ℕ) : sProp 𝕄 :=
  if valid L n then (outM L n).view.loc (thr d L) ↦[(outM L n).view.set]{fullShare} (Cert.Spec.row 21 fx) else iprop(emp)

/-- What a tile is handed for the call: its pieces of row 21 of the transposed argument, at the argument's contents, and
    its pieces of the result at some contents. What it hands back: the same pieces of the argument, and its pieces of
    the result holding the row. -/
def goRes : sProp 𝕄 := iprop(bigSep (Finset.range 18) (xP d L fx) ∗ bigSep (Finset.range 18) (oP (F := F) d L))
def tdRes : sProp 𝕄 := iprop(bigSep (Finset.range 18) (xP d L fx) ∗ bigSep (Finset.range 18) (oQ d L fx))

end Tile

end Cert.Proof.TileB21

end
-- ==== Proof.LaunchPB.lean ====
/-
  The launch of the 22 copy kernels, first part: the program as the launch theorem reads it, what the handshakes of
  each call carry (every vector subcore its pieces of row q of the transposed argument and of result q), each kernel's
  task obligation from the proof of its body, how a SparseCore's share splits among its sixteen tasks, and the launch
  element of the ghost state.
-/
import proofs.«206869_g37898791420194_cont_8to1_b_558_20_alg».proof.Proof.LaunchPieces
import proofs.«206869_g37898791420194_cont_8to1_b_558_20_alg».proof.Proof.TileB0Defs
import proofs.«206869_g37898791420194_cont_8to1_b_558_20_alg».proof.Proof.TileB1Defs
import proofs.«206869_g37898791420194_cont_8to1_b_558_20_alg».proof.Proof.TileB2Defs
import proofs.«206869_g37898791420194_cont_8to1_b_558_20_alg».proof.Proof.TileB3Defs
import proofs.«206869_g37898791420194_cont_8to1_b_558_20_alg».proof.Proof.TileB4Defs
import proofs.«206869_g37898791420194_cont_8to1_b_558_20_alg».proof.Proof.TileB5Defs
import proofs.«206869_g37898791420194_cont_8to1_b_558_20_alg».proof.Proof.TileB6Defs
import proofs.«206869_g37898791420194_cont_8to1_b_558_20_alg».proof.Proof.TileB7Defs
import proofs.«206869_g37898791420194_cont_8to1_b_558_20_alg».proof.Proof.TileB8Defs
import proofs.«206869_g37898791420194_cont_8to1_b_558_20_alg».proof.Proof.TileB9Defs
import proofs.«206869_g37898791420194_cont_8to1_b_558_20_alg».proof.Proof.TileB10Defs
import proofs.«206869_g37898791420194_cont_8to1_b_558_20_alg».proof.Proof.TileB11Defs
import proofs.«206869_g37898791420194_cont_8to1_b_558_20_alg».proof.Proof.TileB12Defs
import proofs.«206869_g37898791420194_cont_8to1_b_558_20_alg».proof.Proof.TileB13Defs
import proofs.«206869_g37898791420194_cont_8to1_b_558_20_alg».proof.Proof.TileB14Defs
import proofs.«206869_g37898791420194_cont_8to1_b_558_20_alg».proof.Proof.TileB15Defs
import proofs.«206869_g37898791420194_cont_8to1_b_558_20_alg».proof.Proof.TileB16Defs
import proofs.«206869_g37898791420194_cont_8to1_b_558_20_alg».proof.Proof.TileB17Defs
import proofs.«206869_g37898791420194_cont_8to1_b_558_20_alg».proof.Proof.TileB18Defs
import proofs.«206869_g37898791420194_cont_8to1_b_558_20_alg».proof.Proof.TileB19Defs
import proofs.«206869_g37898791420194_cont_8to1_b_558_20_alg».proof.Proof.TileB20Defs
import proofs.«206869_g37898791420194_cont_8to1_b_558_20_alg».proof.Proof.TileB21Defs

noncomputable section

namespace Cert.Proof.LaunchKB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 22 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- Every call is a vector-subcore kernel on both SparseCores and all sixteen vector subcores of each. -/
theorem nCore_eq (q : Fin 22) : (K (F := F)).nCore q = 2 := (by decide : ∀ q, scNCore q = 2) q
theorem nSub_eq (q : Fin 22) : (K (F := F)).nSub q = 16 := (by decide : ∀ q, scNSub q = 16) q
theorem kind_eq (q : Fin 22) : (K (F := F)).kind q = .scVector := (by decide : ∀ q, scKind q = .scVector) q

abbrev UH : Type := URounds (GSem nD τ sig) ℕ
abbrev UU : Type := UH × Counters

local notation "𝕄" => MT nD τ sig (HIx 22) (Elt F) ℕ UU ℕ

abbrev EH : Emb UH (MT nD τ sig (HIx 22) (Elt F) ℕ UU ℕ) := embL

variable (m : (ℓ : Loc nD τ sig) → Buf (Elt F) ℓ) (ρ : Dev nD → PrngReg)

variable [FloatOps F]

/-- The transposed argument: what @main's first line leaves in its result buffer, the array every kernel reads. -/
abbrev ℓa (d : Dev nD) : Loc nD τ sig := (SparseCore.T d).loc main_arg0
abbrev ℓx (d : Dev nD) : Loc nD τ sig := (SparseCore.T d).loc main_v0
abbrev xt (d : Dev nD) : Buf (Elt F) (ℓx d) :=
  transpose S22x1600000 [1, 0] (m (ℓa d)) transposes_S1600000x22_S22x1600000_1_0

open Cert.Proof.Pieces (crd)

/-- What the task of vector subcore (c, s) in call q is handed, and what it hands back. -/
def goQ (q : Fin 22) (d : Dev nD) (c : Fin 2) (s : Fin 16) : sProp 𝕄 := match q with
  | 0 => TileB0.goRes d (crd c s) (xt m d)
  | 1 => TileB1.goRes d (crd c s) (xt m d)
  | 2 => TileB2.goRes d (crd c s) (xt m d)
  | 3 => TileB3.goRes d (crd c s) (xt m d)
  | 4 => TileB4.goRes d (crd c s) (xt m d)
  | 5 => TileB5.goRes d (crd c s) (xt m d)
  | 6 => TileB6.goRes d (crd c s) (xt m d)
  | 7 => TileB7.goRes d (crd c s) (xt m d)
  | 8 => TileB8.goRes d (crd c s) (xt m d)
  | 9 => TileB9.goRes d (crd c s) (xt m d)
  | 10 => TileB10.goRes d (crd c s) (xt m d)
  | 11 => TileB11.goRes d (crd c s) (xt m d)
  | 12 => TileB12.goRes d (crd c s) (xt m d)
  | 13 => TileB13.goRes d (crd c s) (xt m d)
  | 14 => TileB14.goRes d (crd c s) (xt m d)
  | 15 => TileB15.goRes d (crd c s) (xt m d)
  | 16 => TileB16.goRes d (crd c s) (xt m d)
  | 17 => TileB17.goRes d (crd c s) (xt m d)
  | 18 => TileB18.goRes d (crd c s) (xt m d)
  | 19 => TileB19.goRes d (crd c s) (xt m d)
  | 20 => TileB20.goRes d (crd c s) (xt m d)
  | 21 => TileB21.goRes d (crd c s) (xt m d)
  | ⟨_ + 22, h⟩ => absurd h (Nat.not_lt.2 (Nat.le_add_left _ _))
def tdQ (q : Fin 22) (d : Dev nD) (c : Fin 2) (s : Fin 16) : sProp 𝕄 := match q with
  | 0 => TileB0.tdRes d (crd c s) (xt m d)
  | 1 => TileB1.tdRes d (crd c s) (xt m d)
  | 2 => TileB2.tdRes d (crd c s) (xt m d)
  | 3 => TileB3.tdRes d (crd c s) (xt m d)
  | 4 => TileB4.tdRes d (crd c s) (xt m d)
  | 5 => TileB5.tdRes d (crd c s) (xt m d)
  | 6 => TileB6.tdRes d (crd c s) (xt m d)
  | 7 => TileB7.tdRes d (crd c s) (xt m d)
  | 8 => TileB8.tdRes d (crd c s) (xt m d)
  | 9 => TileB9.tdRes d (crd c s) (xt m d)
  | 10 => TileB10.tdRes d (crd c s) (xt m d)
  | 11 => TileB11.tdRes d (crd c s) (xt m d)
  | 12 => TileB12.tdRes d (crd c s) (xt m d)
  | 13 => TileB13.tdRes d (crd c s) (xt m d)
  | 14 => TileB14.tdRes d (crd c s) (xt m d)
  | 15 => TileB15.tdRes d (crd c s) (xt m d)
  | 16 => TileB16.tdRes d (crd c s) (xt m d)
  | 17 => TileB17.tdRes d (crd c s) (xt m d)
  | 18 => TileB18.tdRes d (crd c s) (xt m d)
  | 19 => TileB19.tdRes d (crd c s) (xt m d)
  | 20 => TileB20.tdRes d (crd c s) (xt m d)
  | 21 => TileB21.tdRes d (crd c s) (xt m d)
  | ⟨_ + 22, h⟩ => absurd h (Nat.not_lt.2 (Nat.le_add_left _ _))

omit [FloatOps F] in
theorem storable_ite {A B : sProp 𝕄} (p : Prop) [Decidable p] [BI.Storable (upEmb : UEmb _ 𝕄) A] [BI.Storable (upEmb : UEmb _ 𝕄) B] :
    BI.Storable (upEmb : UEmb _ 𝕄) (if p then A else B) := by split <;> infer_instance

set_option synthInstance.maxHeartbeats 400000 in
instance go0_storable (d : Dev nD) (L : grid0.Coords) (fx) : BI.Storable (upEmb : UEmb _ 𝕄) (TileB0.goRes (F := F) d L fx) := by
  unfold TileB0.goRes TileB0.xP TileB0.oP
  have := fun n => storable_ite (F := F) (A := TileB0.xtPiece d L fx n) (B := iprop(emp)) (TileB0.valid L n)
  have := fun n => storable_ite (F := F) (A := TileB0.oPiece (F := F) d L n) (B := iprop(emp)) (TileB0.valid L n)
  infer_instance
set_option synthInstance.maxHeartbeats 400000 in
instance td0_storable (d : Dev nD) (L : grid0.Coords) (fx) : BI.Storable (upEmb : UEmb _ 𝕄) (TileB0.tdRes (F := F) d L fx) := by
  unfold TileB0.tdRes TileB0.xP TileB0.oQ
  have := fun n => storable_ite (F := F) (A := TileB0.xtPiece d L fx n) (B := iprop(emp)) (TileB0.valid L n)
  have := fun n => storable_ite (F := F) (A := ((TileB0.outM L n).view.loc (TileB0.thr d L) ↦[(TileB0.outM L n).view.set]{fullShare} (Cert.Spec.row 0 fx) : sProp 𝕄)) (B := iprop(emp)) (TileB0.valid L n)
  infer_instance
set_option synthInstance.maxHeartbeats 400000 in
instance go1_storable (d : Dev nD) (L : grid1.Coords) (fx) : BI.Storable (upEmb : UEmb _ 𝕄) (TileB1.goRes (F := F) d L fx) := by
  unfold TileB1.goRes TileB1.xP TileB1.oP
  have := fun n => storable_ite (F := F) (A := TileB1.xtPiece d L fx n) (B := iprop(emp)) (TileB1.valid L n)
  have := fun n => storable_ite (F := F) (A := TileB1.oPiece (F := F) d L n) (B := iprop(emp)) (TileB1.valid L n)
  infer_instance
set_option synthInstance.maxHeartbeats 400000 in
instance td1_storable (d : Dev nD) (L : grid1.Coords) (fx) : BI.Storable (upEmb : UEmb _ 𝕄) (TileB1.tdRes (F := F) d L fx) := by
  unfold TileB1.tdRes TileB1.xP TileB1.oQ
  have := fun n => storable_ite (F := F) (A := TileB1.xtPiece d L fx n) (B := iprop(emp)) (TileB1.valid L n)
  have := fun n => storable_ite (F := F) (A := ((TileB1.outM L n).view.loc (TileB1.thr d L) ↦[(TileB1.outM L n).view.set]{fullShare} (Cert.Spec.row 1 fx) : sProp 𝕄)) (B := iprop(emp)) (TileB1.valid L n)
  infer_instance
set_option synthInstance.maxHeartbeats 400000 in
instance go2_storable (d : Dev nD) (L : grid2.Coords) (fx) : BI.Storable (upEmb : UEmb _ 𝕄) (TileB2.goRes (F := F) d L fx) := by
  unfold TileB2.goRes TileB2.xP TileB2.oP
  have := fun n => storable_ite (F := F) (A := TileB2.xtPiece d L fx n) (B := iprop(emp)) (TileB2.valid L n)
  have := fun n => storable_ite (F := F) (A := TileB2.oPiece (F := F) d L n) (B := iprop(emp)) (TileB2.valid L n)
  infer_instance
set_option synthInstance.maxHeartbeats 400000 in
instance td2_storable (d : Dev nD) (L : grid2.Coords) (fx) : BI.Storable (upEmb : UEmb _ 𝕄) (TileB2.tdRes (F := F) d L fx) := by
  unfold TileB2.tdRes TileB2.xP TileB2.oQ
  have := fun n => storable_ite (F := F) (A := TileB2.xtPiece d L fx n) (B := iprop(emp)) (TileB2.valid L n)
  have := fun n => storable_ite (F := F) (A := ((TileB2.outM L n).view.loc (TileB2.thr d L) ↦[(TileB2.outM L n).view.set]{fullShare} (Cert.Spec.row 2 fx) : sProp 𝕄)) (B := iprop(emp)) (TileB2.valid L n)
  infer_instance
set_option synthInstance.maxHeartbeats 400000 in
instance go3_storable (d : Dev nD) (L : grid3.Coords) (fx) : BI.Storable (upEmb : UEmb _ 𝕄) (TileB3.goRes (F := F) d L fx) := by
  unfold TileB3.goRes TileB3.xP TileB3.oP
  have := fun n => storable_ite (F := F) (A := TileB3.xtPiece d L fx n) (B := iprop(emp)) (TileB3.valid L n)
  have := fun n => storable_ite (F := F) (A := TileB3.oPiece (F := F) d L n) (B := iprop(emp)) (TileB3.valid L n)
  infer_instance
set_option synthInstance.maxHeartbeats 400000 in
instance td3_storable (d : Dev nD) (L : grid3.Coords) (fx) : BI.Storable (upEmb : UEmb _ 𝕄) (TileB3.tdRes (F := F) d L fx) := by
  unfold TileB3.tdRes TileB3.xP TileB3.oQ
  have := fun n => storable_ite (F := F) (A := TileB3.xtPiece d L fx n) (B := iprop(emp)) (TileB3.valid L n)
  have := fun n => storable_ite (F := F) (A := ((TileB3.outM L n).view.loc (TileB3.thr d L) ↦[(TileB3.outM L n).view.set]{fullShare} (Cert.Spec.row 3 fx) : sProp 𝕄)) (B := iprop(emp)) (TileB3.valid L n)
  infer_instance
set_option synthInstance.maxHeartbeats 400000 in
instance go4_storable (d : Dev nD) (L : grid4.Coords) (fx) : BI.Storable (upEmb : UEmb _ 𝕄) (TileB4.goRes (F := F) d L fx) := by
  unfold TileB4.goRes TileB4.xP TileB4.oP
  have := fun n => storable_ite (F := F) (A := TileB4.xtPiece d L fx n) (B := iprop(emp)) (TileB4.valid L n)
  have := fun n => storable_ite (F := F) (A := TileB4.oPiece (F := F) d L n) (B := iprop(emp)) (TileB4.valid L n)
  infer_instance
set_option synthInstance.maxHeartbeats 400000 in
instance td4_storable (d : Dev nD) (L : grid4.Coords) (fx) : BI.Storable (upEmb : UEmb _ 𝕄) (TileB4.tdRes (F := F) d L fx) := by
  unfold TileB4.tdRes TileB4.xP TileB4.oQ
  have := fun n => storable_ite (F := F) (A := TileB4.xtPiece d L fx n) (B := iprop(emp)) (TileB4.valid L n)
  have := fun n => storable_ite (F := F) (A := ((TileB4.outM L n).view.loc (TileB4.thr d L) ↦[(TileB4.outM L n).view.set]{fullShare} (Cert.Spec.row 4 fx) : sProp 𝕄)) (B := iprop(emp)) (TileB4.valid L n)
  infer_instance
set_option synthInstance.maxHeartbeats 400000 in
instance go5_storable (d : Dev nD) (L : grid5.Coords) (fx) : BI.Storable (upEmb : UEmb _ 𝕄) (TileB5.goRes (F := F) d L fx) := by
  unfold TileB5.goRes TileB5.xP TileB5.oP
  have := fun n => storable_ite (F := F) (A := TileB5.xtPiece d L fx n) (B := iprop(emp)) (TileB5.valid L n)
  have := fun n => storable_ite (F := F) (A := TileB5.oPiece (F := F) d L n) (B := iprop(emp)) (TileB5.valid L n)
  infer_instance
set_option synthInstance.maxHeartbeats 400000 in
instance td5_storable (d : Dev nD) (L : grid5.Coords) (fx) : BI.Storable (upEmb : UEmb _ 𝕄) (TileB5.tdRes (F := F) d L fx) := by
  unfold TileB5.tdRes TileB5.xP TileB5.oQ
  have := fun n => storable_ite (F := F) (A := TileB5.xtPiece d L fx n) (B := iprop(emp)) (TileB5.valid L n)
  have := fun n => storable_ite (F := F) (A := ((TileB5.outM L n).view.loc (TileB5.thr d L) ↦[(TileB5.outM L n).view.set]{fullShare} (Cert.Spec.row 5 fx) : sProp 𝕄)) (B := iprop(emp)) (TileB5.valid L n)
  infer_instance
set_option synthInstance.maxHeartbeats 400000 in
instance go6_storable (d : Dev nD) (L : grid6.Coords) (fx) : BI.Storable (upEmb : UEmb _ 𝕄) (TileB6.goRes (F := F) d L fx) := by
  unfold TileB6.goRes TileB6.xP TileB6.oP
  have := fun n => storable_ite (F := F) (A := TileB6.xtPiece d L fx n) (B := iprop(emp)) (TileB6.valid L n)
  have := fun n => storable_ite (F := F) (A := TileB6.oPiece (F := F) d L n) (B := iprop(emp)) (TileB6.valid L n)
  infer_instance
set_option synthInstance.maxHeartbeats 400000 in
instance td6_storable (d : Dev nD) (L : grid6.Coords) (fx) : BI.Storable (upEmb : UEmb _ 𝕄) (TileB6.tdRes (F := F) d L fx) := by
  unfold TileB6.tdRes TileB6.xP TileB6.oQ
  have := fun n => storable_ite (F := F) (A := TileB6.xtPiece d L fx n) (B := iprop(emp)) (TileB6.valid L n)
  have := fun n => storable_ite (F := F) (A := ((TileB6.outM L n).view.loc (TileB6.thr d L) ↦[(TileB6.outM L n).view.set]{fullShare} (Cert.Spec.row 6 fx) : sProp 𝕄)) (B := iprop(emp)) (TileB6.valid L n)
  infer_instance
set_option synthInstance.maxHeartbeats 400000 in
instance go7_storable (d : Dev nD) (L : grid7.Coords) (fx) : BI.Storable (upEmb : UEmb _ 𝕄) (TileB7.goRes (F := F) d L fx) := by
  unfold TileB7.goRes TileB7.xP TileB7.oP
  have := fun n => storable_ite (F := F) (A := TileB7.xtPiece d L fx n) (B := iprop(emp)) (TileB7.valid L n)
  have := fun n => storable_ite (F := F) (A := TileB7.oPiece (F := F) d L n) (B := iprop(emp)) (TileB7.valid L n)
  infer_instance
set_option synthInstance.maxHeartbeats 400000 in
instance td7_storable (d : Dev nD) (L : grid7.Coords) (fx) : BI.Storable (upEmb : UEmb _ 𝕄) (TileB7.tdRes (F := F) d L fx) := by
  unfold TileB7.tdRes TileB7.xP TileB7.oQ
  have := fun n => storable_ite (F := F) (A := TileB7.xtPiece d L fx n) (B := iprop(emp)) (TileB7.valid L n)
  have := fun n => storable_ite (F := F) (A := ((TileB7.outM L n).view.loc (TileB7.thr d L) ↦[(TileB7.outM L n).view.set]{fullShare} (Cert.Spec.row 7 fx) : sProp 𝕄)) (B := iprop(emp)) (TileB7.valid L n)
  infer_instance
set_option synthInstance.maxHeartbeats 400000 in
instance go8_storable (d : Dev nD) (L : grid8.Coords) (fx) : BI.Storable (upEmb : UEmb _ 𝕄) (TileB8.goRes (F := F) d L fx) := by
  unfold TileB8.goRes TileB8.xP TileB8.oP
  have := fun n => storable_ite (F := F) (A := TileB8.xtPiece d L fx n) (B := iprop(emp)) (TileB8.valid L n)
  have := fun n => storable_ite (F := F) (A := TileB8.oPiece (F := F) d L n) (B := iprop(emp)) (TileB8.valid L n)
  infer_instance
set_option synthInstance.maxHeartbeats 400000 in
instance td8_storable (d : Dev nD) (L : grid8.Coords) (fx) : BI.Storable (upEmb : UEmb _ 𝕄) (TileB8.tdRes (F := F) d L fx) := by
  unfold TileB8.tdRes TileB8.xP TileB8.oQ
  have := fun n => storable_ite (F := F) (A := TileB8.xtPiece d L fx n) (B := iprop(emp)) (TileB8.valid L n)
  have := fun n => storable_ite (F := F) (A := ((TileB8.outM L n).view.loc (TileB8.thr d L) ↦[(TileB8.outM L n).view.set]{fullShare} (Cert.Spec.row 8 fx) : sProp 𝕄)) (B := iprop(emp)) (TileB8.valid L n)
  infer_instance
set_option synthInstance.maxHeartbeats 400000 in
instance go9_storable (d : Dev nD) (L : grid9.Coords) (fx) : BI.Storable (upEmb : UEmb _ 𝕄) (TileB9.goRes (F := F) d L fx) := by
  unfold TileB9.goRes TileB9.xP TileB9.oP
  have := fun n => storable_ite (F := F) (A := TileB9.xtPiece d L fx n) (B := iprop(emp)) (TileB9.valid L n)
  have := fun n => storable_ite (F := F) (A := TileB9.oPiece (F := F) d L n) (B := iprop(emp)) (TileB9.valid L n)
  infer_instance
set_option synthInstance.maxHeartbeats 400000 in
instance td9_storable (d : Dev nD) (L : grid9.Coords) (fx) : BI.Storable (upEmb : UEmb _ 𝕄) (TileB9.tdRes (F := F) d L fx) := by
  unfold TileB9.tdRes TileB9.xP TileB9.oQ
  have := fun n => storable_ite (F := F) (A := TileB9.xtPiece d L fx n) (B := iprop(emp)) (TileB9.valid L n)
  have := fun n => storable_ite (F := F) (A := ((TileB9.outM L n).view.loc (TileB9.thr d L) ↦[(TileB9.outM L n).view.set]{fullShare} (Cert.Spec.row 9 fx) : sProp 𝕄)) (B := iprop(emp)) (TileB9.valid L n)
  infer_instance
set_option synthInstance.maxHeartbeats 400000 in
instance go10_storable (d : Dev nD) (L : grid10.Coords) (fx) : BI.Storable (upEmb : UEmb _ 𝕄) (TileB10.goRes (F := F) d L fx) := by
  unfold TileB10.goRes TileB10.xP TileB10.oP
  have := fun n => storable_ite (F := F) (A := TileB10.xtPiece d L fx n) (B := iprop(emp)) (TileB10.valid L n)
  have := fun n => storable_ite (F := F) (A := TileB10.oPiece (F := F) d L n) (B := iprop(emp)) (TileB10.valid L n)
  infer_instance
set_option synthInstance.maxHeartbeats 400000 in
instance td10_storable (d : Dev nD) (L : grid10.Coords) (fx) : BI.Storable (upEmb : UEmb _ 𝕄) (TileB10.tdRes (F := F) d L fx) := by
  unfold TileB10.tdRes TileB10.xP TileB10.oQ
  have := fun n => storable_ite (F := F) (A := TileB10.xtPiece d L fx n) (B := iprop(emp)) (TileB10.valid L n)
  have := fun n => storable_ite (F := F) (A := ((TileB10.outM L n).view.loc (TileB10.thr d L) ↦[(TileB10.outM L n).view.set]{fullShare} (Cert.Spec.row 10 fx) : sProp 𝕄)) (B := iprop(emp)) (TileB10.valid L n)
  infer_instance
set_option synthInstance.maxHeartbeats 400000 in
instance go11_storable (d : Dev nD) (L : grid11.Coords) (fx) : BI.Storable (upEmb : UEmb _ 𝕄) (TileB11.goRes (F := F) d L fx) := by
  unfold TileB11.goRes TileB11.xP TileB11.oP
  have := fun n => storable_ite (F := F) (A := TileB11.xtPiece d L fx n) (B := iprop(emp)) (TileB11.valid L n)
  have := fun n => storable_ite (F := F) (A := TileB11.oPiece (F := F) d L n) (B := iprop(emp)) (TileB11.valid L n)
  infer_instance
set_option synthInstance.maxHeartbeats 400000 in
instance td11_storable (d : Dev nD) (L : grid11.Coords) (fx) : BI.Storable (upEmb : UEmb _ 𝕄) (TileB11.tdRes (F := F) d L fx) := by
  unfold TileB11.tdRes TileB11.xP TileB11.oQ
  have := fun n => storable_ite (F := F) (A := TileB11.xtPiece d L fx n) (B := iprop(emp)) (TileB11.valid L n)
  have := fun n => storable_ite (F := F) (A := ((TileB11.outM L n).view.loc (TileB11.thr d L) ↦[(TileB11.outM L n).view.set]{fullShare} (Cert.Spec.row 11 fx) : sProp 𝕄)) (B := iprop(emp)) (TileB11.valid L n)
  infer_instance
set_option synthInstance.maxHeartbeats 400000 in
instance go12_storable (d : Dev nD) (L : grid12.Coords) (fx) : BI.Storable (upEmb : UEmb _ 𝕄) (TileB12.goRes (F := F) d L fx) := by
  unfold TileB12.goRes TileB12.xP TileB12.oP
  have := fun n => storable_ite (F := F) (A := TileB12.xtPiece d L fx n) (B := iprop(emp)) (TileB12.valid L n)
  have := fun n => storable_ite (F := F) (A := TileB12.oPiece (F := F) d L n) (B := iprop(emp)) (TileB12.valid L n)
  infer_instance
set_option synthInstance.maxHeartbeats 400000 in
instance td12_storable (d : Dev nD) (L : grid12.Coords) (fx) : BI.Storable (upEmb : UEmb _ 𝕄) (TileB12.tdRes (F := F) d L fx) := by
  unfold TileB12.tdRes TileB12.xP TileB12.oQ
  have := fun n => storable_ite (F := F) (A := TileB12.xtPiece d L fx n) (B := iprop(emp)) (TileB12.valid L n)
  have := fun n => storable_ite (F := F) (A := ((TileB12.outM L n).view.loc (TileB12.thr d L) ↦[(TileB12.outM L n).view.set]{fullShare} (Cert.Spec.row 12 fx) : sProp 𝕄)) (B := iprop(emp)) (TileB12.valid L n)
  infer_instance
set_option synthInstance.maxHeartbeats 400000 in
instance go13_storable (d : Dev nD) (L : grid13.Coords) (fx) : BI.Storable (upEmb : UEmb _ 𝕄) (TileB13.goRes (F := F) d L fx) := by
  unfold TileB13.goRes TileB13.xP TileB13.oP
  have := fun n => storable_ite (F := F) (A := TileB13.xtPiece d L fx n) (B := iprop(emp)) (TileB13.valid L n)
  have := fun n => storable_ite (F := F) (A := TileB13.oPiece (F := F) d L n) (B := iprop(emp)) (TileB13.valid L n)
  infer_instance
set_option synthInstance.maxHeartbeats 400000 in
instance td13_storable (d : Dev nD) (L : grid13.Coords) (fx) : BI.Storable (upEmb : UEmb _ 𝕄) (TileB13.tdRes (F := F) d L fx) := by
  unfold TileB13.tdRes TileB13.xP TileB13.oQ
  have := fun n => storable_ite (F := F) (A := TileB13.xtPiece d L fx n) (B := iprop(emp)) (TileB13.valid L n)
  have := fun n => storable_ite (F := F) (A := ((TileB13.outM L n).view.loc (TileB13.thr d L) ↦[(TileB13.outM L n).view.set]{fullShare} (Cert.Spec.row 13 fx) : sProp 𝕄)) (B := iprop(emp)) (TileB13.valid L n)
  infer_instance
set_option synthInstance.maxHeartbeats 400000 in
instance go14_storable (d : Dev nD) (L : grid14.Coords) (fx) : BI.Storable (upEmb : UEmb _ 𝕄) (TileB14.goRes (F := F) d L fx) := by
  unfold TileB14.goRes TileB14.xP TileB14.oP
  have := fun n => storable_ite (F := F) (A := TileB14.xtPiece d L fx n) (B := iprop(emp)) (TileB14.valid L n)
  have := fun n => storable_ite (F := F) (A := TileB14.oPiece (F := F) d L n) (B := iprop(emp)) (TileB14.valid L n)
  infer_instance
set_option synthInstance.maxHeartbeats 400000 in
instance td14_storable (d : Dev nD) (L : grid14.Coords) (fx) : BI.Storable (upEmb : UEmb _ 𝕄) (TileB14.tdRes (F := F) d L fx) := by
  unfold TileB14.tdRes TileB14.xP TileB14.oQ
  have := fun n => storable_ite (F := F) (A := TileB14.xtPiece d L fx n) (B := iprop(emp)) (TileB14.valid L n)
  have := fun n => storable_ite (F := F) (A := ((TileB14.outM L n).view.loc (TileB14.thr d L) ↦[(TileB14.outM L n).view.set]{fullShare} (Cert.Spec.row 14 fx) : sProp 𝕄)) (B := iprop(emp)) (TileB14.valid L n)
  infer_instance
set_option synthInstance.maxHeartbeats 400000 in
instance go15_storable (d : Dev nD) (L : grid15.Coords) (fx) : BI.Storable (upEmb : UEmb _ 𝕄) (TileB15.goRes (F := F) d L fx) := by
  unfold TileB15.goRes TileB15.xP TileB15.oP
  have := fun n => storable_ite (F := F) (A := TileB15.xtPiece d L fx n) (B := iprop(emp)) (TileB15.valid L n)
  have := fun n => storable_ite (F := F) (A := TileB15.oPiece (F := F) d L n) (B := iprop(emp)) (TileB15.valid L n)
  infer_instance
set_option synthInstance.maxHeartbeats 400000 in
instance td15_storable (d : Dev nD) (L : grid15.Coords) (fx) : BI.Storable (upEmb : UEmb _ 𝕄) (TileB15.tdRes (F := F) d L fx) := by
  unfold TileB15.tdRes TileB15.xP TileB15.oQ
  have := fun n => storable_ite (F := F) (A := TileB15.xtPiece d L fx n) (B := iprop(emp)) (TileB15.valid L n)
  have := fun n => storable_ite (F := F) (A := ((TileB15.outM L n).view.loc (TileB15.thr d L) ↦[(TileB15.outM L n).view.set]{fullShare} (Cert.Spec.row 15 fx) : sProp 𝕄)) (B := iprop(emp)) (TileB15.valid L n)
  infer_instance
set_option synthInstance.maxHeartbeats 400000 in
instance go16_storable (d : Dev nD) (L : grid16.Coords) (fx) : BI.Storable (upEmb : UEmb _ 𝕄) (TileB16.goRes (F := F) d L fx) := by
  unfold TileB16.goRes TileB16.xP TileB16.oP
  have := fun n => storable_ite (F := F) (A := TileB16.xtPiece d L fx n) (B := iprop(emp)) (TileB16.valid L n)
  have := fun n => storable_ite (F := F) (A := TileB16.oPiece (F := F) d L n) (B := iprop(emp)) (TileB16.valid L n)
  infer_instance
set_option synthInstance.maxHeartbeats 400000 in
instance td16_storable (d : Dev nD) (L : grid16.Coords) (fx) : BI.Storable (upEmb : UEmb _ 𝕄) (TileB16.tdRes (F := F) d L fx) := by
  unfold TileB16.tdRes TileB16.xP TileB16.oQ
  have := fun n => storable_ite (F := F) (A := TileB16.xtPiece d L fx n) (B := iprop(emp)) (TileB16.valid L n)
  have := fun n => storable_ite (F := F) (A := ((TileB16.outM L n).view.loc (TileB16.thr d L) ↦[(TileB16.outM L n).view.set]{fullShare} (Cert.Spec.row 16 fx) : sProp 𝕄)) (B := iprop(emp)) (TileB16.valid L n)
  infer_instance
set_option synthInstance.maxHeartbeats 400000 in
instance go17_storable (d : Dev nD) (L : grid17.Coords) (fx) : BI.Storable (upEmb : UEmb _ 𝕄) (TileB17.goRes (F := F) d L fx) := by
  unfold TileB17.goRes TileB17.xP TileB17.oP
  have := fun n => storable_ite (F := F) (A := TileB17.xtPiece d L fx n) (B := iprop(emp)) (TileB17.valid L n)
  have := fun n => storable_ite (F := F) (A := TileB17.oPiece (F := F) d L n) (B := iprop(emp)) (TileB17.valid L n)
  infer_instance
set_option synthInstance.maxHeartbeats 400000 in
instance td17_storable (d : Dev nD) (L : grid17.Coords) (fx) : BI.Storable (upEmb : UEmb _ 𝕄) (TileB17.tdRes (F := F) d L fx) := by
  unfold TileB17.tdRes TileB17.xP TileB17.oQ
  have := fun n => storable_ite (F := F) (A := TileB17.xtPiece d L fx n) (B := iprop(emp)) (TileB17.valid L n)
  have := fun n => storable_ite (F := F) (A := ((TileB17.outM L n).view.loc (TileB17.thr d L) ↦[(TileB17.outM L n).view.set]{fullShare} (Cert.Spec.row 17 fx) : sProp 𝕄)) (B := iprop(emp)) (TileB17.valid L n)
  infer_instance
set_option synthInstance.maxHeartbeats 400000 in
instance go18_storable (d : Dev nD) (L : grid18.Coords) (fx) : BI.Storable (upEmb : UEmb _ 𝕄) (TileB18.goRes (F := F) d L fx) := by
  unfold TileB18.goRes TileB18.xP TileB18.oP
  have := fun n => storable_ite (F := F) (A := TileB18.xtPiece d L fx n) (B := iprop(emp)) (TileB18.valid L n)
  have := fun n => storable_ite (F := F) (A := TileB18.oPiece (F := F) d L n) (B := iprop(emp)) (TileB18.valid L n)
  infer_instance
set_option synthInstance.maxHeartbeats 400000 in
instance td18_storable (d : Dev nD) (L : grid18.Coords) (fx) : BI.Storable (upEmb : UEmb _ 𝕄) (TileB18.tdRes (F := F) d L fx) := by
  unfold TileB18.tdRes TileB18.xP TileB18.oQ
  have := fun n => storable_ite (F := F) (A := TileB18.xtPiece d L fx n) (B := iprop(emp)) (TileB18.valid L n)
  have := fun n => storable_ite (F := F) (A := ((TileB18.outM L n).view.loc (TileB18.thr d L) ↦[(TileB18.outM L n).view.set]{fullShare} (Cert.Spec.row 18 fx) : sProp 𝕄)) (B := iprop(emp)) (TileB18.valid L n)
  infer_instance
set_option synthInstance.maxHeartbeats 400000 in
instance go19_storable (d : Dev nD) (L : grid19.Coords) (fx) : BI.Storable (upEmb : UEmb _ 𝕄) (TileB19.goRes (F := F) d L fx) := by
  unfold TileB19.goRes TileB19.xP TileB19.oP
  have := fun n => storable_ite (F := F) (A := TileB19.xtPiece d L fx n) (B := iprop(emp)) (TileB19.valid L n)
  have := fun n => storable_ite (F := F) (A := TileB19.oPiece (F := F) d L n) (B := iprop(emp)) (TileB19.valid L n)
  infer_instance
set_option synthInstance.maxHeartbeats 400000 in
instance td19_storable (d : Dev nD) (L : grid19.Coords) (fx) : BI.Storable (upEmb : UEmb _ 𝕄) (TileB19.tdRes (F := F) d L fx) := by
  unfold TileB19.tdRes TileB19.xP TileB19.oQ
  have := fun n => storable_ite (F := F) (A := TileB19.xtPiece d L fx n) (B := iprop(emp)) (TileB19.valid L n)
  have := fun n => storable_ite (F := F) (A := ((TileB19.outM L n).view.loc (TileB19.thr d L) ↦[(TileB19.outM L n).view.set]{fullShare} (Cert.Spec.row 19 fx) : sProp 𝕄)) (B := iprop(emp)) (TileB19.valid L n)
  infer_instance
set_option synthInstance.maxHeartbeats 400000 in
instance go20_storable (d : Dev nD) (L : grid20.Coords) (fx) : BI.Storable (upEmb : UEmb _ 𝕄) (TileB20.goRes (F := F) d L fx) := by
  unfold TileB20.goRes TileB20.xP TileB20.oP
  have := fun n => storable_ite (F := F) (A := TileB20.xtPiece d L fx n) (B := iprop(emp)) (TileB20.valid L n)
  have := fun n => storable_ite (F := F) (A := TileB20.oPiece (F := F) d L n) (B := iprop(emp)) (TileB20.valid L n)
  infer_instance
set_option synthInstance.maxHeartbeats 400000 in
instance td20_storable (d : Dev nD) (L : grid20.Coords) (fx) : BI.Storable (upEmb : UEmb _ 𝕄) (TileB20.tdRes (F := F) d L fx) := by
  unfold TileB20.tdRes TileB20.xP TileB20.oQ
  have := fun n => storable_ite (F := F) (A := TileB20.xtPiece d L fx n) (B := iprop(emp)) (TileB20.valid L n)
  have := fun n => storable_ite (F := F) (A := ((TileB20.outM L n).view.loc (TileB20.thr d L) ↦[(TileB20.outM L n).view.set]{fullShare} (Cert.Spec.row 20 fx) : sProp 𝕄)) (B := iprop(emp)) (TileB20.valid L n)
  infer_instance
set_option synthInstance.maxHeartbeats 400000 in
instance go21_storable (d : Dev nD) (L : grid21.Coords) (fx) : BI.Storable (upEmb : UEmb _ 𝕄) (TileB21.goRes (F := F) d L fx) := by
  unfold TileB21.goRes TileB21.xP TileB21.oP
  have := fun n => storable_ite (F := F) (A := TileB21.xtPiece d L fx n) (B := iprop(emp)) (TileB21.valid L n)
  have := fun n => storable_ite (F := F) (A := TileB21.oPiece (F := F) d L n) (B := iprop(emp)) (TileB21.valid L n)
  infer_instance
set_option synthInstance.maxHeartbeats 400000 in
instance td21_storable (d : Dev nD) (L : grid21.Coords) (fx) : BI.Storable (upEmb : UEmb _ 𝕄) (TileB21.tdRes (F := F) d L fx) := by
  unfold TileB21.tdRes TileB21.xP TileB21.oQ
  have := fun n => storable_ite (F := F) (A := TileB21.xtPiece d L fx n) (B := iprop(emp)) (TileB21.valid L n)
  have := fun n => storable_ite (F := F) (A := ((TileB21.outM L n).view.loc (TileB21.thr d L) ↦[(TileB21.outM L n).view.set]{fullShare} (Cert.Spec.row 21 fx) : sProp 𝕄)) (B := iprop(emp)) (TileB21.valid L n)
  infer_instance

instance goQ_storable (q : Fin 22) (d : Dev nD) (c : Fin 2) (s : Fin 16) : BI.Storable (upEmb : UEmb _ 𝕄) (goQ m q d c s) := by
  unfold goQ; split <;> first | infer_instance | (rename_i h; exact absurd h (Nat.not_lt.2 (Nat.le_add_left _ _)))
instance tdQ_storable (q : Fin 22) (d : Dev nD) (c : Fin 2) (s : Fin 16) : BI.Storable (upEmb : UEmb _ 𝕄) (tdQ m q d c s) := by
  unfold tdQ; split <;> first | infer_instance | (rename_i h; exact absurd h (Nat.not_lt.2 (Nat.le_add_left _ _)))

/-- The calls' payloads: a task its pieces, a SparseCore the pieces of its sixteen tasks; no kernel's proof consumes
    anything of the launch's. -/
def P : (K (F := F)).Pay (nD := nD) (Val := Elt F) (Name := ℕ) (U := UU) where
  st := fun q d c => bigSep Finset.univ fun i : Fin ((K (F := F)).nSub q) => goQ m q d (c.cast (nCore_eq q)) (i.cast (nSub_eq q))
  dn := fun q d c => bigSep Finset.univ fun i : Fin ((K (F := F)).nSub q) => tdQ m q d (c.cast (nCore_eq q)) (i.cast (nSub_eq q))
  go := fun q d c i => goQ m q d (c.cast (nCore_eq q)) (i.cast (nSub_eq q))
  td := fun q d c i => tdQ m q d (c.cast (nCore_eq q)) (i.cast (nSub_eq q))
  x := fun _ _ => iprop(emp)

instance P_storable : (P (F := F) m).IsStorable where
  st _ d c := by unfold P; infer_instance
  dn _ d c := by unfold P; infer_instance
  go _ _ _ _ := by unfold P; infer_instance
  td _ _ _ _ := by unfold P; infer_instance

/-- A SparseCore's share is its sixteen tasks' shares, going and coming back. -/
theorem vecSplit (q : Fin 22) : (K (F := F)).VecSplit' (P m) q := by
  intro d c
  show (bigSep Finset.univ fun i : Fin ((K (F := F)).nSub q) => (P m).go q d c i)
    ⊢ |={Set.univ}=> iprop((bigSep Finset.univ fun i : Fin ((K (F := F)).nSub q) => (P m).go q d c i)
      ∗ ((bigSep Finset.univ fun i : Fin ((K (F := F)).nSub q) => (P m).td q d c i)
          -∗ (bigSep Finset.univ fun i : Fin ((K (F := F)).nSub q) => (P m).td q d c i)))
  iintro H; imodintro
  isplitl [H]; · iexact H
  iintro H; iexact H

/-! ## The launch element: the handshakes' rounds; nothing of the kernels' own -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 22 => (P m).x q thr) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 22 => (iprop(emp) : sProp 𝕄)) = iprop(emp) from by
    rw [bigSep_congr fun _ _ => bigSep_emp' _, bigSep_emp']]
  iempintro

end Cert.Proof.LaunchKB

end
-- ==== Proof.LaunchOblB.lean ====
/-
  The launch of the 22 copy kernels: each kernel's task obligation, from the proof of its body.
-/
import proofs.«206869_g37898791420194_cont_8to1_b_558_20_alg».proof.Proof.LaunchPB

noncomputable section

namespace Cert.Proof.LaunchKB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic
open Cert.Proof.Pieces (crd)

variable {F : FTy → Type}

local notation "𝕄" => MT nD τ sig (HIx 22) (Elt F) ℕ UU ℕ

variable (m : (ℓ : Loc nD τ sig) → Buf (Elt F) ℓ) (ρ : Dev nD → PrngReg)

variable [FloatOps F]

/-! ## The kernels' task obligations, from the proofs of their bodies -/

/-- The 22 body proofs, one per kernel: a vector subcore's task of kernel q, from its pieces to its pieces with the
    result's holding row q. -/
structure TileBodies (F : FTy → Type) [FloatOps F] : Prop where
  b0 : ∀ (hF : (K (F := F)).Facts) (d : Dev nD) (L : grid0.Coords) (fx : Buf (Elt F) ((Memref.whole main_v0_scv : Memref sig .scVector .hbm S22x1600000 .f32).view.loc (TileB0.thr d L)))
      (O : CellTallies nD τ sig (HIx 22)) (W : Waits sig (HIx 22)) (hO : ∀ g, O g none = 0),
      iprop(levAts (K (F := F)).L (K (F := F)).lev ∗ emp ∗ TileB0.goRes d L fx ∗ scopedBufs (TileB0.thr d L) ∗ scopedSems0 (TileB0.thr d L) ∗ owes (TileB0.thr d L) O W)
        ⊢ wp frame (wpE (defs₀ (F := F)) 𝒱₀ (TileB0.thr d L) none) Set.univ
            (cc0_sc_group L (Memref.whole main_v0_scv) (Memref.isWhole_whole _) (Memref.whole main_v1_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7)
            fun _ => iprop(TileB0.tdRes d L fx ∗ scopedBufs (TileB0.thr d L) ∗ scopedSems0 (TileB0.thr d L) ∗ ∃ W', ⌜∀ p ∈ W', p ∈ W ∨ p.2 = none⌝ ∗ owes (TileB0.thr d L) O W')
  b1 : ∀ (hF : (K (F := F)).Facts) (d : Dev nD) (L : grid1.Coords) (fx : Buf (Elt F) ((Memref.whole main_v0_scv : Memref sig .scVector .hbm S22x1600000 .f32).view.loc (TileB1.thr d L)))
      (O : CellTallies nD τ sig (HIx 22)) (W : Waits sig (HIx 22)) (hO : ∀ g, O g none = 0),
      iprop(levAts (K (F := F)).L (K (F := F)).lev ∗ emp ∗ TileB1.goRes d L fx ∗ scopedBufs (TileB1.thr d L) ∗ scopedSems0 (TileB1.thr d L) ∗ owes (TileB1.thr d L) O W)
        ⊢ wp frame (wpE (defs₀ (F := F)) 𝒱₀ (TileB1.thr d L) none) Set.univ
            (cc1_sc_group L (Memref.whole main_v0_scv) (Memref.isWhole_whole _) (Memref.whole main_v2_scv) (Memref.isWhole_whole _) (Memref.whole cc1_scratch0) (Memref.isWhole_whole _) (Memref.whole cc1_scratch1) (Memref.isWhole_whole _) (Memref.whole cc1_scratch2) (Memref.isWhole_whole _) (Memref.whole cc1_scratch3) (Memref.isWhole_whole _) cc1_scratch4 cc1_scratch5 cc1_scratch6 cc1_scratch7)
            fun _ => iprop(TileB1.tdRes d L fx ∗ scopedBufs (TileB1.thr d L) ∗ scopedSems0 (TileB1.thr d L) ∗ ∃ W', ⌜∀ p ∈ W', p ∈ W ∨ p.2 = none⌝ ∗ owes (TileB1.thr d L) O W')
  b2 : ∀ (hF : (K (F := F)).Facts) (d : Dev nD) (L : grid2.Coords) (fx : Buf (Elt F) ((Memref.whole main_v0_scv : Memref sig .scVector .hbm S22x1600000 .f32).view.loc (TileB2.thr d L)))
      (O : CellTallies nD τ sig (HIx 22)) (W : Waits sig (HIx 22)) (hO : ∀ g, O g none = 0),
      iprop(levAts (K (F := F)).L (K (F := F)).lev ∗ emp ∗ TileB2.goRes d L fx ∗ scopedBufs (TileB2.thr d L) ∗ scopedSems0 (TileB2.thr d L) ∗ owes (TileB2.thr d L) O W)
        ⊢ wp frame (wpE (defs₀ (F := F)) 𝒱₀ (TileB2.thr d L) none) Set.univ
            (cc2_sc_group L (Memref.whole main_v0_scv) (Memref.isWhole_whole _) (Memref.whole main_v3_scv) (Memref.isWhole_whole _) (Memref.whole cc2_scratch0) (Memref.isWhole_whole _) (Memref.whole cc2_scratch1) (Memref.isWhole_whole _) (Memref.whole cc2_scratch2) (Memref.isWhole_whole _) (Memref.whole cc2_scratch3) (Memref.isWhole_whole _) cc2_scratch4 cc2_scratch5 cc2_scratch6 cc2_scratch7)
            fun _ => iprop(TileB2.tdRes d L fx ∗ scopedBufs (TileB2.thr d L) ∗ scopedSems0 (TileB2.thr d L) ∗ ∃ W', ⌜∀ p ∈ W', p ∈ W ∨ p.2 = none⌝ ∗ owes (TileB2.thr d L) O W')
  b3 : ∀ (hF : (K (F := F)).Facts) (d : Dev nD) (L : grid3.Coords) (fx : Buf (Elt F) ((Memref.whole main_v0_scv : Memref sig .scVector .hbm S22x1600000 .f32).view.loc (TileB3.thr d L)))
      (O : CellTallies nD τ sig (HIx 22)) (W : Waits sig (HIx 22)) (hO : ∀ g, O g none = 0),
      iprop(levAts (K (F := F)).L (K (F := F)).lev ∗ emp ∗ TileB3.goRes d L fx ∗ scopedBufs (TileB3.thr d L) ∗ scopedSems0 (TileB3.thr d L) ∗ owes (TileB3.thr d L) O W)
        ⊢ wp frame (wpE (defs₀ (F := F)) 𝒱₀ (TileB3.thr d L) none) Set.univ
            (cc3_sc_group L (Memref.whole main_v0_scv) (Memref.isWhole_whole _) (Memref.whole main_v4_scv) (Memref.isWhole_whole _) (Memref.whole cc3_scratch0) (Memref.isWhole_whole _) (Memref.whole cc3_scratch1) (Memref.isWhole_whole _) (Memref.whole cc3_scratch2) (Memref.isWhole_whole _) (Memref.whole cc3_scratch3) (Memref.isWhole_whole _) cc3_scratch4 cc3_scratch5 cc3_scratch6 cc3_scratch7)
            fun _ => iprop(TileB3.tdRes d L fx ∗ scopedBufs (TileB3.thr d L) ∗ scopedSems0 (TileB3.thr d L) ∗ ∃ W', ⌜∀ p ∈ W', p ∈ W ∨ p.2 = none⌝ ∗ owes (TileB3.thr d L) O W')
  b4 : ∀ (hF : (K (F := F)).Facts) (d : Dev nD) (L : grid4.Coords) (fx : Buf (Elt F) ((Memref.whole main_v0_scv : Memref sig .scVector .hbm S22x1600000 .f32).view.loc (TileB4.thr d L)))
      (O : CellTallies nD τ sig (HIx 22)) (W : Waits sig (HIx 22)) (hO : ∀ g, O g none = 0),
      iprop(levAts (K (F := F)).L (K (F := F)).lev ∗ emp ∗ TileB4.goRes d L fx ∗ scopedBufs (TileB4.thr d L) ∗ scopedSems0 (TileB4.thr d L) ∗ owes (TileB4.thr d L) O W)
        ⊢ wp frame (wpE (defs₀ (F := F)) 𝒱₀ (TileB4.thr d L) none) Set.univ
            (cc4_sc_group L (Memref.whole main_v0_scv) (Memref.isWhole_whole _) (Memref.whole main_v5_scv) (Memref.isWhole_whole _) (Memref.whole cc4_scratch0) (Memref.isWhole_whole _) (Memref.whole cc4_scratch1) (Memref.isWhole_whole _) (Memref.whole cc4_scratch2) (Memref.isWhole_whole _) (Memref.whole cc4_scratch3) (Memref.isWhole_whole _) cc4_scratch4 cc4_scratch5 cc4_scratch6 cc4_scratch7)
            fun _ => iprop(TileB4.tdRes d L fx ∗ scopedBufs (TileB4.thr d L) ∗ scopedSems0 (TileB4.thr d L) ∗ ∃ W', ⌜∀ p ∈ W', p ∈ W ∨ p.2 = none⌝ ∗ owes (TileB4.thr d L) O W')
  b5 : ∀ (hF : (K (F := F)).Facts) (d : Dev nD) (L : grid5.Coords) (fx : Buf (Elt F) ((Memref.whole main_v0_scv : Memref sig .scVector .hbm S22x1600000 .f32).view.loc (TileB5.thr d L)))
      (O : CellTallies nD τ sig (HIx 22)) (W : Waits sig (HIx 22)) (hO : ∀ g, O g none = 0),
      iprop(levAts (K (F := F)).L (K (F := F)).lev ∗ emp ∗ TileB5.goRes d L fx ∗ scopedBufs (TileB5.thr d L) ∗ scopedSems0 (TileB5.thr d L) ∗ owes (TileB5.thr d L) O W)
        ⊢ wp frame (wpE (defs₀ (F := F)) 𝒱₀ (TileB5.thr d L) none) Set.univ
            (cc5_sc_group L (Memref.whole main_v0_scv) (Memref.isWhole_whole _) (Memref.whole main_v6_scv) (Memref.isWhole_whole _) (Memref.whole cc5_scratch0) (Memref.isWhole_whole _) (Memref.whole cc5_scratch1) (Memref.isWhole_whole _) (Memref.whole cc5_scratch2) (Memref.isWhole_whole _) (Memref.whole cc5_scratch3) (Memref.isWhole_whole _) cc5_scratch4 cc5_scratch5 cc5_scratch6 cc5_scratch7)
            fun _ => iprop(TileB5.tdRes d L fx ∗ scopedBufs (TileB5.thr d L) ∗ scopedSems0 (TileB5.thr d L) ∗ ∃ W', ⌜∀ p ∈ W', p ∈ W ∨ p.2 = none⌝ ∗ owes (TileB5.thr d L) O W')
  b6 : ∀ (hF : (K (F := F)).Facts) (d : Dev nD) (L : grid6.Coords) (fx : Buf (Elt F) ((Memref.whole main_v0_scv : Memref sig .scVector .hbm S22x1600000 .f32).view.loc (TileB6.thr d L)))
      (O : CellTallies nD τ sig (HIx 22)) (W : Waits sig (HIx 22)) (hO : ∀ g, O g none = 0),
      iprop(levAts (K (F := F)).L (K (F := F)).lev ∗ emp ∗ TileB6.goRes d L fx ∗ scopedBufs (TileB6.thr d L) ∗ scopedSems0 (TileB6.thr d L) ∗ owes (TileB6.thr d L) O W)
        ⊢ wp frame (wpE (defs₀ (F := F)) 𝒱₀ (TileB6.thr d L) none) Set.univ
            (cc6_sc_group L (Memref.whole main_v0_scv) (Memref.isWhole_whole _) (Memref.whole main_v7_scv) (Memref.isWhole_whole _) (Memref.whole cc6_scratch0) (Memref.isWhole_whole _) (Memref.whole cc6_scratch1) (Memref.isWhole_whole _) (Memref.whole cc6_scratch2) (Memref.isWhole_whole _) (Memref.whole cc6_scratch3) (Memref.isWhole_whole _) cc6_scratch4 cc6_scratch5 cc6_scratch6 cc6_scratch7)
            fun _ => iprop(TileB6.tdRes d L fx ∗ scopedBufs (TileB6.thr d L) ∗ scopedSems0 (TileB6.thr d L) ∗ ∃ W', ⌜∀ p ∈ W', p ∈ W ∨ p.2 = none⌝ ∗ owes (TileB6.thr d L) O W')
  b7 : ∀ (hF : (K (F := F)).Facts) (d : Dev nD) (L : grid7.Coords) (fx : Buf (Elt F) ((Memref.whole main_v0_scv : Memref sig .scVector .hbm S22x1600000 .f32).view.loc (TileB7.thr d L)))
      (O : CellTallies nD τ sig (HIx 22)) (W : Waits sig (HIx 22)) (hO : ∀ g, O g none = 0),
      iprop(levAts (K (F := F)).L (K (F := F)).lev ∗ emp ∗ TileB7.goRes d L fx ∗ scopedBufs (TileB7.thr d L) ∗ scopedSems0 (TileB7.thr d L) ∗ owes (TileB7.thr d L) O W)
        ⊢ wp frame (wpE (defs₀ (F := F)) 𝒱₀ (TileB7.thr d L) none) Set.univ
            (cc7_sc_group L (Memref.whole main_v0_scv) (Memref.isWhole_whole _) (Memref.whole main_v8_scv) (Memref.isWhole_whole _) (Memref.whole cc7_scratch0) (Memref.isWhole_whole _) (Memref.whole cc7_scratch1) (Memref.isWhole_whole _) (Memref.whole cc7_scratch2) (Memref.isWhole_whole _) (Memref.whole cc7_scratch3) (Memref.isWhole_whole _) cc7_scratch4 cc7_scratch5 cc7_scratch6 cc7_scratch7)
            fun _ => iprop(TileB7.tdRes d L fx ∗ scopedBufs (TileB7.thr d L) ∗ scopedSems0 (TileB7.thr d L) ∗ ∃ W', ⌜∀ p ∈ W', p ∈ W ∨ p.2 = none⌝ ∗ owes (TileB7.thr d L) O W')
  b8 : ∀ (hF : (K (F := F)).Facts) (d : Dev nD) (L : grid8.Coords) (fx : Buf (Elt F) ((Memref.whole main_v0_scv : Memref sig .scVector .hbm S22x1600000 .f32).view.loc (TileB8.thr d L)))
      (O : CellTallies nD τ sig (HIx 22)) (W : Waits sig (HIx 22)) (hO : ∀ g, O g none = 0),
      iprop(levAts (K (F := F)).L (K (F := F)).lev ∗ emp ∗ TileB8.goRes d L fx ∗ scopedBufs (TileB8.thr d L) ∗ scopedSems0 (TileB8.thr d L) ∗ owes (TileB8.thr d L) O W)
        ⊢ wp frame (wpE (defs₀ (F := F)) 𝒱₀ (TileB8.thr d L) none) Set.univ
            (cc8_sc_group L (Memref.whole main_v0_scv) (Memref.isWhole_whole _) (Memref.whole main_v9_scv) (Memref.isWhole_whole _) (Memref.whole cc8_scratch0) (Memref.isWhole_whole _) (Memref.whole cc8_scratch1) (Memref.isWhole_whole _) (Memref.whole cc8_scratch2) (Memref.isWhole_whole _) (Memref.whole cc8_scratch3) (Memref.isWhole_whole _) cc8_scratch4 cc8_scratch5 cc8_scratch6 cc8_scratch7)
            fun _ => iprop(TileB8.tdRes d L fx ∗ scopedBufs (TileB8.thr d L) ∗ scopedSems0 (TileB8.thr d L) ∗ ∃ W', ⌜∀ p ∈ W', p ∈ W ∨ p.2 = none⌝ ∗ owes (TileB8.thr d L) O W')
  b9 : ∀ (hF : (K (F := F)).Facts) (d : Dev nD) (L : grid9.Coords) (fx : Buf (Elt F) ((Memref.whole main_v0_scv : Memref sig .scVector .hbm S22x1600000 .f32).view.loc (TileB9.thr d L)))
      (O : CellTallies nD τ sig (HIx 22)) (W : Waits sig (HIx 22)) (hO : ∀ g, O g none = 0),
      iprop(levAts (K (F := F)).L (K (F := F)).lev ∗ emp ∗ TileB9.goRes d L fx ∗ scopedBufs (TileB9.thr d L) ∗ scopedSems0 (TileB9.thr d L) ∗ owes (TileB9.thr d L) O W)
        ⊢ wp frame (wpE (defs₀ (F := F)) 𝒱₀ (TileB9.thr d L) none) Set.univ
            (cc9_sc_group L (Memref.whole main_v0_scv) (Memref.isWhole_whole _) (Memref.whole main_v10_scv) (Memref.isWhole_whole _) (Memref.whole cc9_scratch0) (Memref.isWhole_whole _) (Memref.whole cc9_scratch1) (Memref.isWhole_whole _) (Memref.whole cc9_scratch2) (Memref.isWhole_whole _) (Memref.whole cc9_scratch3) (Memref.isWhole_whole _) cc9_scratch4 cc9_scratch5 cc9_scratch6 cc9_scratch7)
            fun _ => iprop(TileB9.tdRes d L fx ∗ scopedBufs (TileB9.thr d L) ∗ scopedSems0 (TileB9.thr d L) ∗ ∃ W', ⌜∀ p ∈ W', p ∈ W ∨ p.2 = none⌝ ∗ owes (TileB9.thr d L) O W')
  b10 : ∀ (hF : (K (F := F)).Facts) (d : Dev nD) (L : grid10.Coords) (fx : Buf (Elt F) ((Memref.whole main_v0_scv : Memref sig .scVector .hbm S22x1600000 .f32).view.loc (TileB10.thr d L)))
      (O : CellTallies nD τ sig (HIx 22)) (W : Waits sig (HIx 22)) (hO : ∀ g, O g none = 0),
      iprop(levAts (K (F := F)).L (K (F := F)).lev ∗ emp ∗ TileB10.goRes d L fx ∗ scopedBufs (TileB10.thr d L) ∗ scopedSems0 (TileB10.thr d L) ∗ owes (TileB10.thr d L) O W)
        ⊢ wp frame (wpE (defs₀ (F := F)) 𝒱₀ (TileB10.thr d L) none) Set.univ
            (cc10_sc_group L (Memref.whole main_v0_scv) (Memref.isWhole_whole _) (Memref.whole main_v11_scv) (Memref.isWhole_whole _) (Memref.whole cc10_scratch0) (Memref.isWhole_whole _) (Memref.whole cc10_scratch1) (Memref.isWhole_whole _) (Memref.whole cc10_scratch2) (Memref.isWhole_whole _) (Memref.whole cc10_scratch3) (Memref.isWhole_whole _) cc10_scratch4 cc10_scratch5 cc10_scratch6 cc10_scratch7)
            fun _ => iprop(TileB10.tdRes d L fx ∗ scopedBufs (TileB10.thr d L) ∗ scopedSems0 (TileB10.thr d L) ∗ ∃ W', ⌜∀ p ∈ W', p ∈ W ∨ p.2 = none⌝ ∗ owes (TileB10.thr d L) O W')
  b11 : ∀ (hF : (K (F := F)).Facts) (d : Dev nD) (L : grid11.Coords) (fx : Buf (Elt F) ((Memref.whole main_v0_scv : Memref sig .scVector .hbm S22x1600000 .f32).view.loc (TileB11.thr d L)))
      (O : CellTallies nD τ sig (HIx 22)) (W : Waits sig (HIx 22)) (hO : ∀ g, O g none = 0),
      iprop(levAts (K (F := F)).L (K (F := F)).lev ∗ emp ∗ TileB11.goRes d L fx ∗ scopedBufs (TileB11.thr d L) ∗ scopedSems0 (TileB11.thr d L) ∗ owes (TileB11.thr d L) O W)
        ⊢ wp frame (wpE (defs₀ (F := F)) 𝒱₀ (TileB11.thr d L) none) Set.univ
            (cc11_sc_group L (Memref.whole main_v0_scv) (Memref.isWhole_whole _) (Memref.whole main_v12_scv) (Memref.isWhole_whole _) (Memref.whole cc11_scratch0) (Memref.isWhole_whole _) (Memref.whole cc11_scratch1) (Memref.isWhole_whole _) (Memref.whole cc11_scratch2) (Memref.isWhole_whole _) (Memref.whole cc11_scratch3) (Memref.isWhole_whole _) cc11_scratch4 cc11_scratch5 cc11_scratch6 cc11_scratch7)
            fun _ => iprop(TileB11.tdRes d L fx ∗ scopedBufs (TileB11.thr d L) ∗ scopedSems0 (TileB11.thr d L) ∗ ∃ W', ⌜∀ p ∈ W', p ∈ W ∨ p.2 = none⌝ ∗ owes (TileB11.thr d L) O W')
  b12 : ∀ (hF : (K (F := F)).Facts) (d : Dev nD) (L : grid12.Coords) (fx : Buf (Elt F) ((Memref.whole main_v0_scv : Memref sig .scVector .hbm S22x1600000 .f32).view.loc (TileB12.thr d L)))
      (O : CellTallies nD τ sig (HIx 22)) (W : Waits sig (HIx 22)) (hO : ∀ g, O g none = 0),
      iprop(levAts (K (F := F)).L (K (F := F)).lev ∗ emp ∗ TileB12.goRes d L fx ∗ scopedBufs (TileB12.thr d L) ∗ scopedSems0 (TileB12.thr d L) ∗ owes (TileB12.thr d L) O W)
        ⊢ wp frame (wpE (defs₀ (F := F)) 𝒱₀ (TileB12.thr d L) none) Set.univ
            (cc12_sc_group L (Memref.whole main_v0_scv) (Memref.isWhole_whole _) (Memref.whole main_v13_scv) (Memref.isWhole_whole _) (Memref.whole cc12_scratch0) (Memref.isWhole_whole _) (Memref.whole cc12_scratch1) (Memref.isWhole_whole _) (Memref.whole cc12_scratch2) (Memref.isWhole_whole _) (Memref.whole cc12_scratch3) (Memref.isWhole_whole _) cc12_scratch4 cc12_scratch5 cc12_scratch6 cc12_scratch7)
            fun _ => iprop(TileB12.tdRes d L fx ∗ scopedBufs (TileB12.thr d L) ∗ scopedSems0 (TileB12.thr d L) ∗ ∃ W', ⌜∀ p ∈ W', p ∈ W ∨ p.2 = none⌝ ∗ owes (TileB12.thr d L) O W')
  b13 : ∀ (hF : (K (F := F)).Facts) (d : Dev nD) (L : grid13.Coords) (fx : Buf (Elt F) ((Memref.whole main_v0_scv : Memref sig .scVector .hbm S22x1600000 .f32).view.loc (TileB13.thr d L)))
      (O : CellTallies nD τ sig (HIx 22)) (W : Waits sig (HIx 22)) (hO : ∀ g, O g none = 0),
      iprop(levAts (K (F := F)).L (K (F := F)).lev ∗ emp ∗ TileB13.goRes d L fx ∗ scopedBufs (TileB13.thr d L) ∗ scopedSems0 (TileB13.thr d L) ∗ owes (TileB13.thr d L) O W)
        ⊢ wp frame (wpE (defs₀ (F := F)) 𝒱₀ (TileB13.thr d L) none) Set.univ
            (cc13_sc_group L (Memref.whole main_v0_scv) (Memref.isWhole_whole _) (Memref.whole main_v14_scv) (Memref.isWhole_whole _) (Memref.whole cc13_scratch0) (Memref.isWhole_whole _) (Memref.whole cc13_scratch1) (Memref.isWhole_whole _) (Memref.whole cc13_scratch2) (Memref.isWhole_whole _) (Memref.whole cc13_scratch3) (Memref.isWhole_whole _) cc13_scratch4 cc13_scratch5 cc13_scratch6 cc13_scratch7)
            fun _ => iprop(TileB13.tdRes d L fx ∗ scopedBufs (TileB13.thr d L) ∗ scopedSems0 (TileB13.thr d L) ∗ ∃ W', ⌜∀ p ∈ W', p ∈ W ∨ p.2 = none⌝ ∗ owes (TileB13.thr d L) O W')
  b14 : ∀ (hF : (K (F := F)).Facts) (d : Dev nD) (L : grid14.Coords) (fx : Buf (Elt F) ((Memref.whole main_v0_scv : Memref sig .scVector .hbm S22x1600000 .f32).view.loc (TileB14.thr d L)))
      (O : CellTallies nD τ sig (HIx 22)) (W : Waits sig (HIx 22)) (hO : ∀ g, O g none = 0),
      iprop(levAts (K (F := F)).L (K (F := F)).lev ∗ emp ∗ TileB14.goRes d L fx ∗ scopedBufs (TileB14.thr d L) ∗ scopedSems0 (TileB14.thr d L) ∗ owes (TileB14.thr d L) O W)
        ⊢ wp frame (wpE (defs₀ (F := F)) 𝒱₀ (TileB14.thr d L) none) Set.univ
            (cc14_sc_group L (Memref.whole main_v0_scv) (Memref.isWhole_whole _) (Memref.whole main_v15_scv) (Memref.isWhole_whole _) (Memref.whole cc14_scratch0) (Memref.isWhole_whole _) (Memref.whole cc14_scratch1) (Memref.isWhole_whole _) (Memref.whole cc14_scratch2) (Memref.isWhole_whole _) (Memref.whole cc14_scratch3) (Memref.isWhole_whole _) cc14_scratch4 cc14_scratch5 cc14_scratch6 cc14_scratch7)
            fun _ => iprop(TileB14.tdRes d L fx ∗ scopedBufs (TileB14.thr d L) ∗ scopedSems0 (TileB14.thr d L) ∗ ∃ W', ⌜∀ p ∈ W', p ∈ W ∨ p.2 = none⌝ ∗ owes (TileB14.thr d L) O W')
  b15 : ∀ (hF : (K (F := F)).Facts) (d : Dev nD) (L : grid15.Coords) (fx : Buf (Elt F) ((Memref.whole main_v0_scv : Memref sig .scVector .hbm S22x1600000 .f32).view.loc (TileB15.thr d L)))
      (O : CellTallies nD τ sig (HIx 22)) (W : Waits sig (HIx 22)) (hO : ∀ g, O g none = 0),
      iprop(levAts (K (F := F)).L (K (F := F)).lev ∗ emp ∗ TileB15.goRes d L fx ∗ scopedBufs (TileB15.thr d L) ∗ scopedSems0 (TileB15.thr d L) ∗ owes (TileB15.thr d L) O W)
        ⊢ wp frame (wpE (defs₀ (F := F)) 𝒱₀ (TileB15.thr d L) none) Set.univ
            (cc15_sc_group L (Memref.whole main_v0_scv) (Memref.isWhole_whole _) (Memref.whole main_v16_scv) (Memref.isWhole_whole _) (Memref.whole cc15_scratch0) (Memref.isWhole_whole _) (Memref.whole cc15_scratch1) (Memref.isWhole_whole _) (Memref.whole cc15_scratch2) (Memref.isWhole_whole _) (Memref.whole cc15_scratch3) (Memref.isWhole_whole _) cc15_scratch4 cc15_scratch5 cc15_scratch6 cc15_scratch7)
            fun _ => iprop(TileB15.tdRes d L fx ∗ scopedBufs (TileB15.thr d L) ∗ scopedSems0 (TileB15.thr d L) ∗ ∃ W', ⌜∀ p ∈ W', p ∈ W ∨ p.2 = none⌝ ∗ owes (TileB15.thr d L) O W')
  b16 : ∀ (hF : (K (F := F)).Facts) (d : Dev nD) (L : grid16.Coords) (fx : Buf (Elt F) ((Memref.whole main_v0_scv : Memref sig .scVector .hbm S22x1600000 .f32).view.loc (TileB16.thr d L)))
      (O : CellTallies nD τ sig (HIx 22)) (W : Waits sig (HIx 22)) (hO : ∀ g, O g none = 0),
      iprop(levAts (K (F := F)).L (K (F := F)).lev ∗ emp ∗ TileB16.goRes d L fx ∗ scopedBufs (TileB16.thr d L) ∗ scopedSems0 (TileB16.thr d L) ∗ owes (TileB16.thr d L) O W)
        ⊢ wp frame (wpE (defs₀ (F := F)) 𝒱₀ (TileB16.thr d L) none) Set.univ
            (cc16_sc_group L (Memref.whole main_v0_scv) (Memref.isWhole_whole _) (Memref.whole main_v17_scv) (Memref.isWhole_whole _) (Memref.whole cc16_scratch0) (Memref.isWhole_whole _) (Memref.whole cc16_scratch1) (Memref.isWhole_whole _) (Memref.whole cc16_scratch2) (Memref.isWhole_whole _) (Memref.whole cc16_scratch3) (Memref.isWhole_whole _) cc16_scratch4 cc16_scratch5 cc16_scratch6 cc16_scratch7)
            fun _ => iprop(TileB16.tdRes d L fx ∗ scopedBufs (TileB16.thr d L) ∗ scopedSems0 (TileB16.thr d L) ∗ ∃ W', ⌜∀ p ∈ W', p ∈ W ∨ p.2 = none⌝ ∗ owes (TileB16.thr d L) O W')
  b17 : ∀ (hF : (K (F := F)).Facts) (d : Dev nD) (L : grid17.Coords) (fx : Buf (Elt F) ((Memref.whole main_v0_scv : Memref sig .scVector .hbm S22x1600000 .f32).view.loc (TileB17.thr d L)))
      (O : CellTallies nD τ sig (HIx 22)) (W : Waits sig (HIx 22)) (hO : ∀ g, O g none = 0),
      iprop(levAts (K (F := F)).L (K (F := F)).lev ∗ emp ∗ TileB17.goRes d L fx ∗ scopedBufs (TileB17.thr d L) ∗ scopedSems0 (TileB17.thr d L) ∗ owes (TileB17.thr d L) O W)
        ⊢ wp frame (wpE (defs₀ (F := F)) 𝒱₀ (TileB17.thr d L) none) Set.univ
            (cc17_sc_group L (Memref.whole main_v0_scv) (Memref.isWhole_whole _) (Memref.whole main_v18_scv) (Memref.isWhole_whole _) (Memref.whole cc17_scratch0) (Memref.isWhole_whole _) (Memref.whole cc17_scratch1) (Memref.isWhole_whole _) (Memref.whole cc17_scratch2) (Memref.isWhole_whole _) (Memref.whole cc17_scratch3) (Memref.isWhole_whole _) cc17_scratch4 cc17_scratch5 cc17_scratch6 cc17_scratch7)
            fun _ => iprop(TileB17.tdRes d L fx ∗ scopedBufs (TileB17.thr d L) ∗ scopedSems0 (TileB17.thr d L) ∗ ∃ W', ⌜∀ p ∈ W', p ∈ W ∨ p.2 = none⌝ ∗ owes (TileB17.thr d L) O W')
  b18 : ∀ (hF : (K (F := F)).Facts) (d : Dev nD) (L : grid18.Coords) (fx : Buf (Elt F) ((Memref.whole main_v0_scv : Memref sig .scVector .hbm S22x1600000 .f32).view.loc (TileB18.thr d L)))
      (O : CellTallies nD τ sig (HIx 22)) (W : Waits sig (HIx 22)) (hO : ∀ g, O g none = 0),
      iprop(levAts (K (F := F)).L (K (F := F)).lev ∗ emp ∗ TileB18.goRes d L fx ∗ scopedBufs (TileB18.thr d L) ∗ scopedSems0 (TileB18.thr d L) ∗ owes (TileB18.thr d L) O W)
        ⊢ wp frame (wpE (defs₀ (F := F)) 𝒱₀ (TileB18.thr d L) none) Set.univ
            (cc18_sc_group L (Memref.whole main_v0_scv) (Memref.isWhole_whole _) (Memref.whole main_v19_scv) (Memref.isWhole_whole _) (Memref.whole cc18_scratch0) (Memref.isWhole_whole _) (Memref.whole cc18_scratch1) (Memref.isWhole_whole _) (Memref.whole cc18_scratch2) (Memref.isWhole_whole _) (Memref.whole cc18_scratch3) (Memref.isWhole_whole _) cc18_scratch4 cc18_scratch5 cc18_scratch6 cc18_scratch7)
            fun _ => iprop(TileB18.tdRes d L fx ∗ scopedBufs (TileB18.thr d L) ∗ scopedSems0 (TileB18.thr d L) ∗ ∃ W', ⌜∀ p ∈ W', p ∈ W ∨ p.2 = none⌝ ∗ owes (TileB18.thr d L) O W')
  b19 : ∀ (hF : (K (F := F)).Facts) (d : Dev nD) (L : grid19.Coords) (fx : Buf (Elt F) ((Memref.whole main_v0_scv : Memref sig .scVector .hbm S22x1600000 .f32).view.loc (TileB19.thr d L)))
      (O : CellTallies nD τ sig (HIx 22)) (W : Waits sig (HIx 22)) (hO : ∀ g, O g none = 0),
      iprop(levAts (K (F := F)).L (K (F := F)).lev ∗ emp ∗ TileB19.goRes d L fx ∗ scopedBufs (TileB19.thr d L) ∗ scopedSems0 (TileB19.thr d L) ∗ owes (TileB19.thr d L) O W)
        ⊢ wp frame (wpE (defs₀ (F := F)) 𝒱₀ (TileB19.thr d L) none) Set.univ
            (cc19_sc_group L (Memref.whole main_v0_scv) (Memref.isWhole_whole _) (Memref.whole main_v20_scv) (Memref.isWhole_whole _) (Memref.whole cc19_scratch0) (Memref.isWhole_whole _) (Memref.whole cc19_scratch1) (Memref.isWhole_whole _) (Memref.whole cc19_scratch2) (Memref.isWhole_whole _) (Memref.whole cc19_scratch3) (Memref.isWhole_whole _) cc19_scratch4 cc19_scratch5 cc19_scratch6 cc19_scratch7)
            fun _ => iprop(TileB19.tdRes d L fx ∗ scopedBufs (TileB19.thr d L) ∗ scopedSems0 (TileB19.thr d L) ∗ ∃ W', ⌜∀ p ∈ W', p ∈ W ∨ p.2 = none⌝ ∗ owes (TileB19.thr d L) O W')
  b20 : ∀ (hF : (K (F := F)).Facts) (d : Dev nD) (L : grid20.Coords) (fx : Buf (Elt F) ((Memref.whole main_v0_scv : Memref sig .scVector .hbm S22x1600000 .f32).view.loc (TileB20.thr d L)))
      (O : CellTallies nD τ sig (HIx 22)) (W : Waits sig (HIx 22)) (hO : ∀ g, O g none = 0),
      iprop(levAts (K (F := F)).L (K (F := F)).lev ∗ emp ∗ TileB20.goRes d L fx ∗ scopedBufs (TileB20.thr d L) ∗ scopedSems0 (TileB20.thr d L) ∗ owes (TileB20.thr d L) O W)
        ⊢ wp frame (wpE (defs₀ (F := F)) 𝒱₀ (TileB20.thr d L) none) Set.univ
            (cc20_sc_group L (Memref.whole main_v0_scv) (Memref.isWhole_whole _) (Memref.whole main_v21_scv) (Memref.isWhole_whole _) (Memref.whole cc20_scratch0) (Memref.isWhole_whole _) (Memref.whole cc20_scratch1) (Memref.isWhole_whole _) (Memref.whole cc20_scratch2) (Memref.isWhole_whole _) (Memref.whole cc20_scratch3) (Memref.isWhole_whole _) cc20_scratch4 cc20_scratch5 cc20_scratch6 cc20_scratch7)
            fun _ => iprop(TileB20.tdRes d L fx ∗ scopedBufs (TileB20.thr d L) ∗ scopedSems0 (TileB20.thr d L) ∗ ∃ W', ⌜∀ p ∈ W', p ∈ W ∨ p.2 = none⌝ ∗ owes (TileB20.thr d L) O W')
  b21 : ∀ (hF : (K (F := F)).Facts) (d : Dev nD) (L : grid21.Coords) (fx : Buf (Elt F) ((Memref.whole main_v0_scv : Memref sig .scVector .hbm S22x1600000 .f32).view.loc (TileB21.thr d L)))
      (O : CellTallies nD τ sig (HIx 22)) (W : Waits sig (HIx 22)) (hO : ∀ g, O g none = 0),
      iprop(levAts (K (F := F)).L (K (F := F)).lev ∗ emp ∗ TileB21.goRes d L fx ∗ scopedBufs (TileB21.thr d L) ∗ scopedSems0 (TileB21.thr d L) ∗ owes (TileB21.thr d L) O W)
        ⊢ wp frame (wpE (defs₀ (F := F)) 𝒱₀ (TileB21.thr d L) none) Set.univ
            (cc21_sc_group L (Memref.whole main_v0_scv) (Memref.isWhole_whole _) (Memref.whole main_v22_scv) (Memref.isWhole_whole _) (Memref.whole cc21_scratch0) (Memref.isWhole_whole _) (Memref.whole cc21_scratch1) (Memref.isWhole_whole _) (Memref.whole cc21_scratch2) (Memref.isWhole_whole _) (Memref.whole cc21_scratch3) (Memref.isWhole_whole _) cc21_scratch4 cc21_scratch5 cc21_scratch6 cc21_scratch7)
            fun _ => iprop(TileB21.tdRes d L fx ∗ scopedBufs (TileB21.thr d L) ∗ scopedSems0 (TileB21.thr d L) ∗ ∃ W', ⌜∀ p ∈ W', p ∈ W ∨ p.2 = none⌝ ∗ owes (TileB21.thr d L) O W')

omit [FloatOps F] in
theorem obl_post {thr : Thread nD τ} {A B C : sProp 𝕄} {O : CellTallies nD τ sig (HIx 22)} {W : Waits sig (HIx 22)} {q : Fin 22} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem defs₀_vector0 (c : Fin τ.nSC) (s : Fin τ.nSub) :
    defs₀ (F := F) (.scVector c s) 0 ()
      = SparseCore.onTile hcore0 hsub0 (fun c s => cc0_sc_group (fun | 0 => c | 1 => s | ⟨_ + 2, h⟩ => absurd h (Nat.not_lt.2 (Nat.le_add_left _ _))) (Memref.whole main_v0_scv) (Memref.isWhole_whole _) (Memref.whole main_v1_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7) ⟨⟩ c s := rfl

theorem tileObl0 (hF : (K (F := F)).Facts) (hb : TileBodies F) : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector0]; simp only [SparseCore.onTile, hc, and_self, ↓reduceDIte]
  exact (hb.b0 hF d (crd ⟨_, hc.1⟩ ⟨_, hc.2⟩) (xt m d) O W hO).trans (wp_mono frame _ _ fun _ => obl_post)

theorem defs₀_vector1 (c : Fin τ.nSC) (s : Fin τ.nSub) :
    defs₀ (F := F) (.scVector c s) 1 ()
      = SparseCore.onTile hcore1 hsub1 (fun c s => cc1_sc_group (fun | 0 => c | 1 => s | ⟨_ + 2, h⟩ => absurd h (Nat.not_lt.2 (Nat.le_add_left _ _))) (Memref.whole main_v0_scv) (Memref.isWhole_whole _) (Memref.whole main_v2_scv) (Memref.isWhole_whole _) (Memref.whole cc1_scratch0) (Memref.isWhole_whole _) (Memref.whole cc1_scratch1) (Memref.isWhole_whole _) (Memref.whole cc1_scratch2) (Memref.isWhole_whole _) (Memref.whole cc1_scratch3) (Memref.isWhole_whole _) cc1_scratch4 cc1_scratch5 cc1_scratch6 cc1_scratch7) ⟨⟩ c s := rfl

theorem tileObl1 (hF : (K (F := F)).Facts) (hb : TileBodies F) : (K (F := F)).TileObl (D (F := F)) 𝒱 (P m) v₀ 1 := by
  intro d c i O W hO _ _
  simp only [show (P m).ox = fun _ _ => 0 from rfl, add_zero]
  change _ ⊢ wp _ _ _ (Pipeline.liftProg (defs₀ (F := F) (.scVector ((K (F := F)).core 1 c) ((K (F := F)).sub 1 i)) 1 ())) _
  refine BI.Entails.trans ?_ (Pipeline.wp_liftProg (D (F := F)) (Pipeline.defs_kernel pcfgs defs₀) 𝒱₀ _ Set.univ none _ _)
  have hc : ((K (F := F)).core 1 c).val < grid1.bound 0 ∧ ((K (F := F)).sub 1 i).val < grid1.bound 1 := ⟨c.isLt, i.isLt⟩
  rw [defs₀_vector1]; simp only [SparseCore.onTile, hc, and_self, ↓reduceDIte]
  exact (hb.b1 hF d (crd ⟨_, hc.1⟩ ⟨_, hc.2⟩) (xt m d) O W hO).trans (wp_mono frame _ _ fun _ => obl_post)

theorem defs₀_vector2 (c : Fin τ.nSC) (s : Fin τ.nSub) :
    defs₀ (F := F) (.scVector c s) 2 ()
      = SparseCore.onTile hcore2 hsub2 (fun c s => cc2_sc_group (fun | 0 => c | 1 => s | ⟨_ + 2, h⟩ => absurd h (Nat.not_lt.2 (Nat.le_add_left _ _))) (Memref.whole main_v0_scv) (Memref.isWhole_whole _) (Memref.whole main_v3_scv) (Memref.isWhole_whole _) (Memref.whole cc2_scratch0) (Memref.isWhole_whole _) (Memref.whole cc2_scratch1) (Memref.isWhole_whole _) (Memref.whole cc2_scratch2) (Memref.isWhole_whole _) (Memref.whole cc2_scratch3) (Memref.isWhole_whole _) cc2_scratch4 cc2_scratch5 cc2_scratch6 cc2_scratch7) ⟨⟩ c s := rfl

theorem tileObl2 (hF : (K (F := F)).Facts) (hb : TileBodies F) : (K (F := F)).TileObl (D (F := F)) 𝒱 (P m) v₀ 2 := by
  intro d c i O W hO _ _
  simp only [show (P m).ox = fun _ _ => 0 from rfl, add_zero]
  change _ ⊢ wp _ _ _ (Pipeline.liftProg (defs₀ (F := F) (.scVector ((K (F := F)).core 2 c) ((K (F := F)).sub 2 i)) 2 ())) _
  refine BI.Entails.trans ?_ (Pipeline.wp_liftProg (D (F := F)) (Pipeline.defs_kernel pcfgs defs₀) 𝒱₀ _ Set.univ none _ _)
  have hc : ((K (F := F)).core 2 c).val < grid2.bound 0 ∧ ((K (F := F)).sub 2 i).val < grid2.bound 1 := ⟨c.isLt, i.isLt⟩
  rw [defs₀_vector2]; simp only [SparseCore.onTile, hc, and_self, ↓reduceDIte]
  exact (hb.b2 hF d (crd ⟨_, hc.1⟩ ⟨_, hc.2⟩) (xt m d) O W hO).trans (wp_mono frame _ _ fun _ => obl_post)

theorem defs₀_vector3 (c : Fin τ.nSC) (s : Fin τ.nSub) :
    defs₀ (F := F) (.scVector c s) 3 ()
      = SparseCore.onTile hcore3 hsub3 (fun c s => cc3_sc_group (fun | 0 => c | 1 => s | ⟨_ + 2, h⟩ => absurd h (Nat.not_lt.2 (Nat.le_add_left _ _))) (Memref.whole main_v0_scv) (Memref.isWhole_whole _) (Memref.whole main_v4_scv) (Memref.isWhole_whole _) (Memref.whole cc3_scratch0) (Memref.isWhole_whole _) (Memref.whole cc3_scratch1) (Memref.isWhole_whole _) (Memref.whole cc3_scratch2) (Memref.isWhole_whole _) (Memref.whole cc3_scratch3) (Memref.isWhole_whole _) cc3_scratch4 cc3_scratch5 cc3_scratch6 cc3_scratch7) ⟨⟩ c s := rfl

theorem tileObl3 (hF : (K (F := F)).Facts) (hb : TileBodies F) : (K (F := F)).TileObl (D (F := F)) 𝒱 (P m) v₀ 3 := by
  intro d c i O W hO _ _
  simp only [show (P m).ox = fun _ _ => 0 from rfl, add_zero]
  change _ ⊢ wp _ _ _ (Pipeline.liftProg (defs₀ (F := F) (.scVector ((K (F := F)).core 3 c) ((K (F := F)).sub 3 i)) 3 ())) _
  refine BI.Entails.trans ?_ (Pipeline.wp_liftProg (D (F := F)) (Pipeline.defs_kernel pcfgs defs₀) 𝒱₀ _ Set.univ none _ _)
  have hc : ((K (F := F)).core 3 c).val < grid3.bound 0 ∧ ((K (F := F)).sub 3 i).val < grid3.bound 1 := ⟨c.isLt, i.isLt⟩
  rw [defs₀_vector3]; simp only [SparseCore.onTile, hc, and_self, ↓reduceDIte]
  exact (hb.b3 hF d (crd ⟨_, hc.1⟩ ⟨_, hc.2⟩) (xt m d) O W hO).trans (wp_mono frame _ _ fun _ => obl_post)

theorem defs₀_vector4 (c : Fin τ.nSC) (s : Fin τ.nSub) :
    defs₀ (F := F) (.scVector c s) 4 ()
      = SparseCore.onTile hcore4 hsub4 (fun c s => cc4_sc_group (fun | 0 => c | 1 => s | ⟨_ + 2, h⟩ => absurd h (Nat.not_lt.2 (Nat.le_add_left _ _))) (Memref.whole main_v0_scv) (Memref.isWhole_whole _) (Memref.whole main_v5_scv) (Memref.isWhole_whole _) (Memref.whole cc4_scratch0) (Memref.isWhole_whole _) (Memref.whole cc4_scratch1) (Memref.isWhole_whole _) (Memref.whole cc4_scratch2) (Memref.isWhole_whole _) (Memref.whole cc4_scratch3) (Memref.isWhole_whole _) cc4_scratch4 cc4_scratch5 cc4_scratch6 cc4_scratch7) ⟨⟩ c s := rfl

theorem tileObl4 (hF : (K (F := F)).Facts) (hb : TileBodies F) : (K (F := F)).TileObl (D (F := F)) 𝒱 (P m) v₀ 4 := by
  intro d c i O W hO _ _
  simp only [show (P m).ox = fun _ _ => 0 from rfl, add_zero]
  change _ ⊢ wp _ _ _ (Pipeline.liftProg (defs₀ (F := F) (.scVector ((K (F := F)).core 4 c) ((K (F := F)).sub 4 i)) 4 ())) _
  refine BI.Entails.trans ?_ (Pipeline.wp_liftProg (D (F := F)) (Pipeline.defs_kernel pcfgs defs₀) 𝒱₀ _ Set.univ none _ _)
  have hc : ((K (F := F)).core 4 c).val < grid4.bound 0 ∧ ((K (F := F)).sub 4 i).val < grid4.bound 1 := ⟨c.isLt, i.isLt⟩
  rw [defs₀_vector4]; simp only [SparseCore.onTile, hc, and_self, ↓reduceDIte]
  exact (hb.b4 hF d (crd ⟨_, hc.1⟩ ⟨_, hc.2⟩) (xt m d) O W hO).trans (wp_mono frame _ _ fun _ => obl_post)

theorem defs₀_vector5 (c : Fin τ.nSC) (s : Fin τ.nSub) :
    defs₀ (F := F) (.scVector c s) 5 ()
      = SparseCore.onTile hcore5 hsub5 (fun c s => cc5_sc_group (fun | 0 => c | 1 => s | ⟨_ + 2, h⟩ => absurd h (Nat.not_lt.2 (Nat.le_add_left _ _))) (Memref.whole main_v0_scv) (Memref.isWhole_whole _) (Memref.whole main_v6_scv) (Memref.isWhole_whole _) (Memref.whole cc5_scratch0) (Memref.isWhole_whole _) (Memref.whole cc5_scratch1) (Memref.isWhole_whole _) (Memref.whole cc5_scratch2) (Memref.isWhole_whole _) (Memref.whole cc5_scratch3) (Memref.isWhole_whole _) cc5_scratch4 cc5_scratch5 cc5_scratch6 cc5_scratch7) ⟨⟩ c s := rfl

theorem tileObl5 (hF : (K (F := F)).Facts) (hb : TileBodies F) : (K (F := F)).TileObl (D (F := F)) 𝒱 (P m) v₀ 5 := by
  intro d c i O W hO _ _
  simp only [show (P m).ox = fun _ _ => 0 from rfl, add_zero]
  change _ ⊢ wp _ _ _ (Pipeline.liftProg (defs₀ (F := F) (.scVector ((K (F := F)).core 5 c) ((K (F := F)).sub 5 i)) 5 ())) _
  refine BI.Entails.trans ?_ (Pipeline.wp_liftProg (D (F := F)) (Pipeline.defs_kernel pcfgs defs₀) 𝒱₀ _ Set.univ none _ _)
  have hc : ((K (F := F)).core 5 c).val < grid5.bound 0 ∧ ((K (F := F)).sub 5 i).val < grid5.bound 1 := ⟨c.isLt, i.isLt⟩
  rw [defs₀_vector5]; simp only [SparseCore.onTile, hc, and_self, ↓reduceDIte]
  exact (hb.b5 hF d (crd ⟨_, hc.1⟩ ⟨_, hc.2⟩) (xt m d) O W hO).trans (wp_mono frame _ _ fun _ => obl_post)

theorem defs₀_vector6 (c : Fin τ.nSC) (s : Fin τ.nSub) :
    defs₀ (F := F) (.scVector c s) 6 ()
      = SparseCore.onTile hcore6 hsub6 (fun c s => cc6_sc_group (fun | 0 => c | 1 => s | ⟨_ + 2, h⟩ => absurd h (Nat.not_lt.2 (Nat.le_add_left _ _))) (Memref.whole main_v0_scv) (Memref.isWhole_whole _) (Memref.whole main_v7_scv) (Memref.isWhole_whole _) (Memref.whole cc6_scratch0) (Memref.isWhole_whole _) (Memref.whole cc6_scratch1) (Memref.isWhole_whole _) (Memref.whole cc6_scratch2) (Memref.isWhole_whole _) (Memref.whole cc6_scratch3) (Memref.isWhole_whole _) cc6_scratch4 cc6_scratch5 cc6_scratch6 cc6_scratch7) ⟨⟩ c s := rfl

theorem tileObl6 (hF : (K (F := F)).Facts) (hb : TileBodies F) : (K (F := F)).TileObl (D (F := F)) 𝒱 (P m) v₀ 6 := by
  intro d c i O W hO _ _
  simp only [show (P m).ox = fun _ _ => 0 from rfl, add_zero]
  change _ ⊢ wp _ _ _ (Pipeline.liftProg (defs₀ (F := F) (.scVector ((K (F := F)).core 6 c) ((K (F := F)).sub 6 i)) 6 ())) _
  refine BI.Entails.trans ?_ (Pipeline.wp_liftProg (D (F := F)) (Pipeline.defs_kernel pcfgs defs₀) 𝒱₀ _ Set.univ none _ _)
  have hc : ((K (F := F)).core 6 c).val < grid6.bound 0 ∧ ((K (F := F)).sub 6 i).val < grid6.bound 1 := ⟨c.isLt, i.isLt⟩
  rw [defs₀_vector6]; simp only [SparseCore.onTile, hc, and_self, ↓reduceDIte]
  exact (hb.b6 hF d (crd ⟨_, hc.1⟩ ⟨_, hc.2⟩) (xt m d) O W hO).trans (wp_mono frame _ _ fun _ => obl_post)

theorem defs₀_vector7 (c : Fin τ.nSC) (s : Fin τ.nSub) :
    defs₀ (F := F) (.scVector c s) 7 ()
      = SparseCore.onTile hcore7 hsub7 (fun c s => cc7_sc_group (fun | 0 => c | 1 => s | ⟨_ + 2, h⟩ => absurd h (Nat.not_lt.2 (Nat.le_add_left _ _))) (Memref.whole main_v0_scv) (Memref.isWhole_whole _) (Memref.whole main_v8_scv) (Memref.isWhole_whole _) (Memref.whole cc7_scratch0) (Memref.isWhole_whole _) (Memref.whole cc7_scratch1) (Memref.isWhole_whole _) (Memref.whole cc7_scratch2) (Memref.isWhole_whole _) (Memref.whole cc7_scratch3) (Memref.isWhole_whole _) cc7_scratch4 cc7_scratch5 cc7_scratch6 cc7_scratch7) ⟨⟩ c s := rfl

theorem tileObl7 (hF : (K (F := F)).Facts) (hb : TileBodies F) : (K (F := F)).TileObl (D (F := F)) 𝒱 (P m) v₀ 7 := by
  intro d c i O W hO _ _
  simp only [show (P m).ox = fun _ _ => 0 from rfl, add_zero]
  change _ ⊢ wp _ _ _ (Pipeline.liftProg (defs₀ (F := F) (.scVector ((K (F := F)).core 7 c) ((K (F := F)).sub 7 i)) 7 ())) _
  refine BI.Entails.trans ?_ (Pipeline.wp_liftProg (D (F := F)) (Pipeline.defs_kernel pcfgs defs₀) 𝒱₀ _ Set.univ none _ _)
  have hc : ((K (F := F)).core 7 c).val < grid7.bound 0 ∧ ((K (F := F)).sub 7 i).val < grid7.bound 1 := ⟨c.isLt, i.isLt⟩
  rw [defs₀_vector7]; simp only [SparseCore.onTile, hc, and_self, ↓reduceDIte]
  exact (hb.b7 hF d (crd ⟨_, hc.1⟩ ⟨_, hc.2⟩) (xt m d) O W hO).trans (wp_mono frame _ _ fun _ => obl_post)

theorem defs₀_vector8 (c : Fin τ.nSC) (s : Fin τ.nSub) :
    defs₀ (F := F) (.scVector c s) 8 ()
      = SparseCore.onTile hcore8 hsub8 (fun c s => cc8_sc_group (fun | 0 => c | 1 => s | ⟨_ + 2, h⟩ => absurd h (Nat.not_lt.2 (Nat.le_add_left _ _))) (Memref.whole main_v0_scv) (Memref.isWhole_whole _) (Memref.whole main_v9_scv) (Memref.isWhole_whole _) (Memref.whole cc8_scratch0) (Memref.isWhole_whole _) (Memref.whole cc8_scratch1) (Memref.isWhole_whole _) (Memref.whole cc8_scratch2) (Memref.isWhole_whole _) (Memref.whole cc8_scratch3) (Memref.isWhole_whole _) cc8_scratch4 cc8_scratch5 cc8_scratch6 cc8_scratch7) ⟨⟩ c s := rfl

theorem tileObl8 (hF : (K (F := F)).Facts) (hb : TileBodies F) : (K (F := F)).TileObl (D (F := F)) 𝒱 (P m) v₀ 8 := by
  intro d c i O W hO _ _
  simp only [show (P m).ox = fun _ _ => 0 from rfl, add_zero]
  change _ ⊢ wp _ _ _ (Pipeline.liftProg (defs₀ (F := F) (.scVector ((K (F := F)).core 8 c) ((K (F := F)).sub 8 i)) 8 ())) _
  refine BI.Entails.trans ?_ (Pipeline.wp_liftProg (D (F := F)) (Pipeline.defs_kernel pcfgs defs₀) 𝒱₀ _ Set.univ none _ _)
  have hc : ((K (F := F)).core 8 c).val < grid8.bound 0 ∧ ((K (F := F)).sub 8 i).val < grid8.bound 1 := ⟨c.isLt, i.isLt⟩
  rw [defs₀_vector8]; simp only [SparseCore.onTile, hc, and_self, ↓reduceDIte]
  exact (hb.b8 hF d (crd ⟨_, hc.1⟩ ⟨_, hc.2⟩) (xt m d) O W hO).trans (wp_mono frame _ _ fun _ => obl_post)

theorem defs₀_vector9 (c : Fin τ.nSC) (s : Fin τ.nSub) :
    defs₀ (F := F) (.scVector c s) 9 ()
      = SparseCore.onTile hcore9 hsub9 (fun c s => cc9_sc_group (fun | 0 => c | 1 => s | ⟨_ + 2, h⟩ => absurd h (Nat.not_lt.2 (Nat.le_add_left _ _))) (Memref.whole main_v0_scv) (Memref.isWhole_whole _) (Memref.whole main_v10_scv) (Memref.isWhole_whole _) (Memref.whole cc9_scratch0) (Memref.isWhole_whole _) (Memref.whole cc9_scratch1) (Memref.isWhole_whole _) (Memref.whole cc9_scratch2) (Memref.isWhole_whole _) (Memref.whole cc9_scratch3) (Memref.isWhole_whole _) cc9_scratch4 cc9_scratch5 cc9_scratch6 cc9_scratch7) ⟨⟩ c s := rfl

theorem tileObl9 (hF : (K (F := F)).Facts) (hb : TileBodies F) : (K (F := F)).TileObl (D (F := F)) 𝒱 (P m) v₀ 9 := by
  intro d c i O W hO _ _
  simp only [show (P m).ox = fun _ _ => 0 from rfl, add_zero]
  change _ ⊢ wp _ _ _ (Pipeline.liftProg (defs₀ (F := F) (.scVector ((K (F := F)).core 9 c) ((K (F := F)).sub 9 i)) 9 ())) _
  refine BI.Entails.trans ?_ (Pipeline.wp_liftProg (D (F := F)) (Pipeline.defs_kernel pcfgs defs₀) 𝒱₀ _ Set.univ none _ _)
  have hc : ((K (F := F)).core 9 c).val < grid9.bound 0 ∧ ((K (F := F)).sub 9 i).val < grid9.bound 1 := ⟨c.isLt, i.isLt⟩
  rw [defs₀_vector9]; simp only [SparseCore.onTile, hc, and_self, ↓reduceDIte]
  exact (hb.b9 hF d (crd ⟨_, hc.1⟩ ⟨_, hc.2⟩) (xt m d) O W hO).trans (wp_mono frame _ _ fun _ => obl_post)

theorem defs₀_vector10 (c : Fin τ.nSC) (s : Fin τ.nSub) :
    defs₀ (F := F) (.scVector c s) 10 ()
      = SparseCore.onTile hcore10 hsub10 (fun c s => cc10_sc_group (fun | 0 => c | 1 => s | ⟨_ + 2, h⟩ => absurd h (Nat.not_lt.2 (Nat.le_add_left _ _))) (Memref.whole main_v0_scv) (Memref.isWhole_whole _) (Memref.whole main_v11_scv) (Memref.isWhole_whole _) (Memref.whole cc10_scratch0) (Memref.isWhole_whole _) (Memref.whole cc10_scratch1) (Memref.isWhole_whole _) (Memref.whole cc10_scratch2) (Memref.isWhole_whole _) (Memref.whole cc10_scratch3) (Memref.isWhole_whole _) cc10_scratch4 cc10_scratch5 cc10_scratch6 cc10_scratch7) ⟨⟩ c s := rfl

theorem tileObl10 (hF : (K (F := F)).Facts) (hb : TileBodies F) : (K (F := F)).TileObl (D (F := F)) 𝒱 (P m) v₀ 10 := by
  intro d c i O W hO _ _
  simp only [show (P m).ox = fun _ _ => 0 from rfl, add_zero]
  change _ ⊢ wp _ _ _ (Pipeline.liftProg (defs₀ (F := F) (.scVector ((K (F := F)).core 10 c) ((K (F := F)).sub 10 i)) 10 ())) _
  refine BI.Entails.trans ?_ (Pipeline.wp_liftProg (D (F := F)) (Pipeline.defs_kernel pcfgs defs₀) 𝒱₀ _ Set.univ none _ _)
  have hc : ((K (F := F)).core 10 c).val < grid10.bound 0 ∧ ((K (F := F)).sub 10 i).val < grid10.bound 1 := ⟨c.isLt, i.isLt⟩
  rw [defs₀_vector10]; simp only [SparseCore.onTile, hc, and_self, ↓reduceDIte]
  exact (hb.b10 hF d (crd ⟨_, hc.1⟩ ⟨_, hc.2⟩) (xt m d) O W hO).trans (wp_mono frame _ _ fun _ => obl_post)

theorem defs₀_vector11 (c : Fin τ.nSC) (s : Fin τ.nSub) :
    defs₀ (F := F) (.scVector c s) 11 ()
      = SparseCore.onTile hcore11 hsub11 (fun c s => cc11_sc_group (fun | 0 => c | 1 => s | ⟨_ + 2, h⟩ => absurd h (Nat.not_lt.2 (Nat.le_add_left _ _))) (Memref.whole main_v0_scv) (Memref.isWhole_whole _) (Memref.whole main_v12_scv) (Memref.isWhole_whole _) (Memref.whole cc11_scratch0) (Memref.isWhole_whole _) (Memref.whole cc11_scratch1) (Memref.isWhole_whole _) (Memref.whole cc11_scratch2) (Memref.isWhole_whole _) (Memref.whole cc11_scratch3) (Memref.isWhole_whole _) cc11_scratch4 cc11_scratch5 cc11_scratch6 cc11_scratch7) ⟨⟩ c s := rfl

theorem tileObl11 (hF : (K (F := F)).Facts) (hb : TileBodies F) : (K (F := F)).TileObl (D (F := F)) 𝒱 (P m) v₀ 11 := by
  intro d c i O W hO _ _
  simp only [show (P m).ox = fun _ _ => 0 from rfl, add_zero]
  change _ ⊢ wp _ _ _ (Pipeline.liftProg (defs₀ (F := F) (.scVector ((K (F := F)).core 11 c) ((K (F := F)).sub 11 i)) 11 ())) _
  refine BI.Entails.trans ?_ (Pipeline.wp_liftProg (D (F := F)) (Pipeline.defs_kernel pcfgs defs₀) 𝒱₀ _ Set.univ none _ _)
  have hc : ((K (F := F)).core 11 c).val < grid11.bound 0 ∧ ((K (F := F)).sub 11 i).val < grid11.bound 1 := ⟨c.isLt, i.isLt⟩
  rw [defs₀_vector11]; simp only [SparseCore.onTile, hc, and_self, ↓reduceDIte]
  exact (hb.b11 hF d (crd ⟨_, hc.1⟩ ⟨_, hc.2⟩) (xt m d) O W hO).trans (wp_mono frame _ _ fun _ => obl_post)

theorem defs₀_vector12 (c : Fin τ.nSC) (s : Fin τ.nSub) :
    defs₀ (F := F) (.scVector c s) 12 ()
      = SparseCore.onTile hcore12 hsub12 (fun c s => cc12_sc_group (fun | 0 => c | 1 => s | ⟨_ + 2, h⟩ => absurd h (Nat.not_lt.2 (Nat.le_add_left _ _))) (Memref.whole main_v0_scv) (Memref.isWhole_whole _) (Memref.whole main_v13_scv) (Memref.isWhole_whole _) (Memref.whole cc12_scratch0) (Memref.isWhole_whole _) (Memref.whole cc12_scratch1) (Memref.isWhole_whole _) (Memref.whole cc12_scratch2) (Memref.isWhole_whole _) (Memref.whole cc12_scratch3) (Memref.isWhole_whole _) cc12_scratch4 cc12_scratch5 cc12_scratch6 cc12_scratch7) ⟨⟩ c s := rfl

theorem tileObl12 (hF : (K (F := F)).Facts) (hb : TileBodies F) : (K (F := F)).TileObl (D (F := F)) 𝒱 (P m) v₀ 12 := by
  intro d c i O W hO _ _
  simp only [show (P m).ox = fun _ _ => 0 from rfl, add_zero]
  change _ ⊢ wp _ _ _ (Pipeline.liftProg (defs₀ (F := F) (.scVector ((K (F := F)).core 12 c) ((K (F := F)).sub 12 i)) 12 ())) _
  refine BI.Entails.trans ?_ (Pipeline.wp_liftProg (D (F := F)) (Pipeline.defs_kernel pcfgs defs₀) 𝒱₀ _ Set.univ none _ _)
  have hc : ((K (F := F)).core 12 c).val < grid12.bound 0 ∧ ((K (F := F)).sub 12 i).val < grid12.bound 1 := ⟨c.isLt, i.isLt⟩
  rw [defs₀_vector12]; simp only [SparseCore.onTile, hc, and_self, ↓reduceDIte]
  exact (hb.b12 hF d (crd ⟨_, hc.1⟩ ⟨_, hc.2⟩) (xt m d) O W hO).trans (wp_mono frame _ _ fun _ => obl_post)

theorem defs₀_vector13 (c : Fin τ.nSC) (s : Fin τ.nSub) :
    defs₀ (F := F) (.scVector c s) 13 ()
      = SparseCore.onTile hcore13 hsub13 (fun c s => cc13_sc_group (fun | 0 => c | 1 => s | ⟨_ + 2, h⟩ => absurd h (Nat.not_lt.2 (Nat.le_add_left _ _))) (Memref.whole main_v0_scv) (Memref.isWhole_whole _) (Memref.whole main_v14_scv) (Memref.isWhole_whole _) (Memref.whole cc13_scratch0) (Memref.isWhole_whole _) (Memref.whole cc13_scratch1) (Memref.isWhole_whole _) (Memref.whole cc13_scratch2) (Memref.isWhole_whole _) (Memref.whole cc13_scratch3) (Memref.isWhole_whole _) cc13_scratch4 cc13_scratch5 cc13_scratch6 cc13_scratch7) ⟨⟩ c s := rfl

theorem tileObl13 (hF : (K (F := F)).Facts) (hb : TileBodies F) : (K (F := F)).TileObl (D (F := F)) 𝒱 (P m) v₀ 13 := by
  intro d c i O W hO _ _
  simp only [show (P m).ox = fun _ _ => 0 from rfl, add_zero]
  change _ ⊢ wp _ _ _ (Pipeline.liftProg (defs₀ (F := F) (.scVector ((K (F := F)).core 13 c) ((K (F := F)).sub 13 i)) 13 ())) _
  refine BI.Entails.trans ?_ (Pipeline.wp_liftProg (D (F := F)) (Pipeline.defs_kernel pcfgs defs₀) 𝒱₀ _ Set.univ none _ _)
  have hc : ((K (F := F)).core 13 c).val < grid13.bound 0 ∧ ((K (F := F)).sub 13 i).val < grid13.bound 1 := ⟨c.isLt, i.isLt⟩
  rw [defs₀_vector13]; simp only [SparseCore.onTile, hc, and_self, ↓reduceDIte]
  exact (hb.b13 hF d (crd ⟨_, hc.1⟩ ⟨_, hc.2⟩) (xt m d) O W hO).trans (wp_mono frame _ _ fun _ => obl_post)

theorem defs₀_vector14 (c : Fin τ.nSC) (s : Fin τ.nSub) :
    defs₀ (F := F) (.scVector c s) 14 ()
      = SparseCore.onTile hcore14 hsub14 (fun c s => cc14_sc_group (fun | 0 => c | 1 => s | ⟨_ + 2, h⟩ => absurd h (Nat.not_lt.2 (Nat.le_add_left _ _))) (Memref.whole main_v0_scv) (Memref.isWhole_whole _) (Memref.whole main_v15_scv) (Memref.isWhole_whole _) (Memref.whole cc14_scratch0) (Memref.isWhole_whole _) (Memref.whole cc14_scratch1) (Memref.isWhole_whole _) (Memref.whole cc14_scratch2) (Memref.isWhole_whole _) (Memref.whole cc14_scratch3) (Memref.isWhole_whole _) cc14_scratch4 cc14_scratch5 cc14_scratch6 cc14_scratch7) ⟨⟩ c s := rfl

theorem tileObl14 (hF : (K (F := F)).Facts) (hb : TileBodies F) : (K (F := F)).TileObl (D (F := F)) 𝒱 (P m) v₀ 14 := by
  intro d c i O W hO _ _
  simp only [show (P m).ox = fun _ _ => 0 from rfl, add_zero]
  change _ ⊢ wp _ _ _ (Pipeline.liftProg (defs₀ (F := F) (.scVector ((K (F := F)).core 14 c) ((K (F := F)).sub 14 i)) 14 ())) _
  refine BI.Entails.trans ?_ (Pipeline.wp_liftProg (D (F := F)) (Pipeline.defs_kernel pcfgs defs₀) 𝒱₀ _ Set.univ none _ _)
  have hc : ((K (F := F)).core 14 c).val < grid14.bound 0 ∧ ((K (F := F)).sub 14 i).val < grid14.bound 1 := ⟨c.isLt, i.isLt⟩
  rw [defs₀_vector14]; simp only [SparseCore.onTile, hc, and_self, ↓reduceDIte]
  exact (hb.b14 hF d (crd ⟨_, hc.1⟩ ⟨_, hc.2⟩) (xt m d) O W hO).trans (wp_mono frame _ _ fun _ => obl_post)

theorem defs₀_vector15 (c : Fin τ.nSC) (s : Fin τ.nSub) :
    defs₀ (F := F) (.scVector c s) 15 ()
      = SparseCore.onTile hcore15 hsub15 (fun c s => cc15_sc_group (fun | 0 => c | 1 => s | ⟨_ + 2, h⟩ => absurd h (Nat.not_lt.2 (Nat.le_add_left _ _))) (Memref.whole main_v0_scv) (Memref.isWhole_whole _) (Memref.whole main_v16_scv) (Memref.isWhole_whole _) (Memref.whole cc15_scratch0) (Memref.isWhole_whole _) (Memref.whole cc15_scratch1) (Memref.isWhole_whole _) (Memref.whole cc15_scratch2) (Memref.isWhole_whole _) (Memref.whole cc15_scratch3) (Memref.isWhole_whole _) cc15_scratch4 cc15_scratch5 cc15_scratch6 cc15_scratch7) ⟨⟩ c s := rfl

theorem tileObl15 (hF : (K (F := F)).Facts) (hb : TileBodies F) : (K (F := F)).TileObl (D (F := F)) 𝒱 (P m) v₀ 15 := by
  intro d c i O W hO _ _
  simp only [show (P m).ox = fun _ _ => 0 from rfl, add_zero]
  change _ ⊢ wp _ _ _ (Pipeline.liftProg (defs₀ (F := F) (.scVector ((K (F := F)).core 15 c) ((K (F := F)).sub 15 i)) 15 ())) _
  refine BI.Entails.trans ?_ (Pipeline.wp_liftProg (D (F := F)) (Pipeline.defs_kernel pcfgs defs₀) 𝒱₀ _ Set.univ none _ _)
  have hc : ((K (F := F)).core 15 c).val < grid15.bound 0 ∧ ((K (F := F)).sub 15 i).val < grid15.bound 1 := ⟨c.isLt, i.isLt⟩
  rw [defs₀_vector15]; simp only [SparseCore.onTile, hc, and_self, ↓reduceDIte]
  exact (hb.b15 hF d (crd ⟨_, hc.1⟩ ⟨_, hc.2⟩) (xt m d) O W hO).trans (wp_mono frame _ _ fun _ => obl_post)

theorem defs₀_vector16 (c : Fin τ.nSC) (s : Fin τ.nSub) :
    defs₀ (F := F) (.scVector c s) 16 ()
      = SparseCore.onTile hcore16 hsub16 (fun c s => cc16_sc_group (fun | 0 => c | 1 => s | ⟨_ + 2, h⟩ => absurd h (Nat.not_lt.2 (Nat.le_add_left _ _))) (Memref.whole main_v0_scv) (Memref.isWhole_whole _) (Memref.whole main_v17_scv) (Memref.isWhole_whole _) (Memref.whole cc16_scratch0) (Memref.isWhole_whole _) (Memref.whole cc16_scratch1) (Memref.isWhole_whole _) (Memref.whole cc16_scratch2) (Memref.isWhole_whole _) (Memref.whole cc16_scratch3) (Memref.isWhole_whole _) cc16_scratch4 cc16_scratch5 cc16_scratch6 cc16_scratch7) ⟨⟩ c s := rfl

theorem tileObl16 (hF : (K (F := F)).Facts) (hb : TileBodies F) : (K (F := F)).TileObl (D (F := F)) 𝒱 (P m) v₀ 16 := by
  intro d c i O W hO _ _
  simp only [show (P m).ox = fun _ _ => 0 from rfl, add_zero]
  change _ ⊢ wp _ _ _ (Pipeline.liftProg (defs₀ (F := F) (.scVector ((K (F := F)).core 16 c) ((K (F := F)).sub 16 i)) 16 ())) _
  refine BI.Entails.trans ?_ (Pipeline.wp_liftProg (D (F := F)) (Pipeline.defs_kernel pcfgs defs₀) 𝒱₀ _ Set.univ none _ _)
  have hc : ((K (F := F)).core 16 c).val < grid16.bound 0 ∧ ((K (F := F)).sub 16 i).val < grid16.bound 1 := ⟨c.isLt, i.isLt⟩
  rw [defs₀_vector16]; simp only [SparseCore.onTile, hc, and_self, ↓reduceDIte]
  exact (hb.b16 hF d (crd ⟨_, hc.1⟩ ⟨_, hc.2⟩) (xt m d) O W hO).trans (wp_mono frame _ _ fun _ => obl_post)

theorem defs₀_vector17 (c : Fin τ.nSC) (s : Fin τ.nSub) :
    defs₀ (F := F) (.scVector c s) 17 ()
      = SparseCore.onTile hcore17 hsub17 (fun c s => cc17_sc_group (fun | 0 => c | 1 => s | ⟨_ + 2, h⟩ => absurd h (Nat.not_lt.2 (Nat.le_add_left _ _))) (Memref.whole main_v0_scv) (Memref.isWhole_whole _) (Memref.whole main_v18_scv) (Memref.isWhole_whole _) (Memref.whole cc17_scratch0) (Memref.isWhole_whole _) (Memref.whole cc17_scratch1) (Memref.isWhole_whole _) (Memref.whole cc17_scratch2) (Memref.isWhole_whole _) (Memref.whole cc17_scratch3) (Memref.isWhole_whole _) cc17_scratch4 cc17_scratch5 cc17_scratch6 cc17_scratch7) ⟨⟩ c s := rfl

theorem tileObl17 (hF : (K (F := F)).Facts) (hb : TileBodies F) : (K (F := F)).TileObl (D (F := F)) 𝒱 (P m) v₀ 17 := by
  intro d c i O W hO _ _
  simp only [show (P m).ox = fun _ _ => 0 from rfl, add_zero]
  change _ ⊢ wp _ _ _ (Pipeline.liftProg (defs₀ (F := F) (.scVector ((K (F := F)).core 17 c) ((K (F := F)).sub 17 i)) 17 ())) _
  refine BI.Entails.trans ?_ (Pipeline.wp_liftProg (D (F := F)) (Pipeline.defs_kernel pcfgs defs₀) 𝒱₀ _ Set.univ none _ _)
  have hc : ((K (F := F)).core 17 c).val < grid17.bound 0 ∧ ((K (F := F)).sub 17 i).val < grid17.bound 1 := ⟨c.isLt, i.isLt⟩
  rw [defs₀_vector17]; simp only [SparseCore.onTile, hc, and_self, ↓reduceDIte]
  exact (hb.b17 hF d (crd ⟨_, hc.1⟩ ⟨_, hc.2⟩) (xt m d) O W hO).trans (wp_mono frame _ _ fun _ => obl_post)

theorem defs₀_vector18 (c : Fin τ.nSC) (s : Fin τ.nSub) :
    defs₀ (F := F) (.scVector c s) 18 ()
      = SparseCore.onTile hcore18 hsub18 (fun c s => cc18_sc_group (fun | 0 => c | 1 => s | ⟨_ + 2, h⟩ => absurd h (Nat.not_lt.2 (Nat.le_add_left _ _))) (Memref.whole main_v0_scv) (Memref.isWhole_whole _) (Memref.whole main_v19_scv) (Memref.isWhole_whole _) (Memref.whole cc18_scratch0) (Memref.isWhole_whole _) (Memref.whole cc18_scratch1) (Memref.isWhole_whole _) (Memref.whole cc18_scratch2) (Memref.isWhole_whole _) (Memref.whole cc18_scratch3) (Memref.isWhole_whole _) cc18_scratch4 cc18_scratch5 cc18_scratch6 cc18_scratch7) ⟨⟩ c s := rfl

theorem tileObl18 (hF : (K (F := F)).Facts) (hb : TileBodies F) : (K (F := F)).TileObl (D (F := F)) 𝒱 (P m) v₀ 18 := by
  intro d c i O W hO _ _
  simp only [show (P m).ox = fun _ _ => 0 from rfl, add_zero]
  change _ ⊢ wp _ _ _ (Pipeline.liftProg (defs₀ (F := F) (.scVector ((K (F := F)).core 18 c) ((K (F := F)).sub 18 i)) 18 ())) _
  refine BI.Entails.trans ?_ (Pipeline.wp_liftProg (D (F := F)) (Pipeline.defs_kernel pcfgs defs₀) 𝒱₀ _ Set.univ none _ _)
  have hc : ((K (F := F)).core 18 c).val < grid18.bound 0 ∧ ((K (F := F)).sub 18 i).val < grid18.bound 1 := ⟨c.isLt, i.isLt⟩
  rw [defs₀_vector18]; simp only [SparseCore.onTile, hc, and_self, ↓reduceDIte]
  exact (hb.b18 hF d (crd ⟨_, hc.1⟩ ⟨_, hc.2⟩) (xt m d) O W hO).trans (wp_mono frame _ _ fun _ => obl_post)

theorem defs₀_vector19 (c : Fin τ.nSC) (s : Fin τ.nSub) :
    defs₀ (F := F) (.scVector c s) 19 ()
      = SparseCore.onTile hcore19 hsub19 (fun c s => cc19_sc_group (fun | 0 => c | 1 => s | ⟨_ + 2, h⟩ => absurd h (Nat.not_lt.2 (Nat.le_add_left _ _))) (Memref.whole main_v0_scv) (Memref.isWhole_whole _) (Memref.whole main_v20_scv) (Memref.isWhole_whole _) (Memref.whole cc19_scratch0) (Memref.isWhole_whole _) (Memref.whole cc19_scratch1) (Memref.isWhole_whole _) (Memref.whole cc19_scratch2) (Memref.isWhole_whole _) (Memref.whole cc19_scratch3) (Memref.isWhole_whole _) cc19_scratch4 cc19_scratch5 cc19_scratch6 cc19_scratch7) ⟨⟩ c s := rfl

theorem tileObl19 (hF : (K (F := F)).Facts) (hb : TileBodies F) : (K (F := F)).TileObl (D (F := F)) 𝒱 (P m) v₀ 19 := by
  intro d c i O W hO _ _
  simp only [show (P m).ox = fun _ _ => 0 from rfl, add_zero]
  change _ ⊢ wp _ _ _ (Pipeline.liftProg (defs₀ (F := F) (.scVector ((K (F := F)).core 19 c) ((K (F := F)).sub 19 i)) 19 ())) _
  refine BI.Entails.trans ?_ (Pipeline.wp_liftProg (D (F := F)) (Pipeline.defs_kernel pcfgs defs₀) 𝒱₀ _ Set.univ none _ _)
  have hc : ((K (F := F)).core 19 c).val < grid19.bound 0 ∧ ((K (F := F)).sub 19 i).val < grid19.bound 1 := ⟨c.isLt, i.isLt⟩
  rw [defs₀_vector19]; simp only [SparseCore.onTile, hc, and_self, ↓reduceDIte]
  exact (hb.b19 hF d (crd ⟨_, hc.1⟩ ⟨_, hc.2⟩) (xt m d) O W hO).trans (wp_mono frame _ _ fun _ => obl_post)

theorem defs₀_vector20 (c : Fin τ.nSC) (s : Fin τ.nSub) :
    defs₀ (F := F) (.scVector c s) 20 ()
      = SparseCore.onTile hcore20 hsub20 (fun c s => cc20_sc_group (fun | 0 => c | 1 => s | ⟨_ + 2, h⟩ => absurd h (Nat.not_lt.2 (Nat.le_add_left _ _))) (Memref.whole main_v0_scv) (Memref.isWhole_whole _) (Memref.whole main_v21_scv) (Memref.isWhole_whole _) (Memref.whole cc20_scratch0) (Memref.isWhole_whole _) (Memref.whole cc20_scratch1) (Memref.isWhole_whole _) (Memref.whole cc20_scratch2) (Memref.isWhole_whole _) (Memref.whole cc20_scratch3) (Memref.isWhole_whole _) cc20_scratch4 cc20_scratch5 cc20_scratch6 cc20_scratch7) ⟨⟩ c s := rfl

theorem tileObl20 (hF : (K (F := F)).Facts) (hb : TileBodies F) : (K (F := F)).TileObl (D (F := F)) 𝒱 (P m) v₀ 20 := by
  intro d c i O W hO _ _
  simp only [show (P m).ox = fun _ _ => 0 from rfl, add_zero]
  change _ ⊢ wp _ _ _ (Pipeline.liftProg (defs₀ (F := F) (.scVector ((K (F := F)).core 20 c) ((K (F := F)).sub 20 i)) 20 ())) _
  refine BI.Entails.trans ?_ (Pipeline.wp_liftProg (D (F := F)) (Pipeline.defs_kernel pcfgs defs₀) 𝒱₀ _ Set.univ none _ _)
  have hc : ((K (F := F)).core 20 c).val < grid20.bound 0 ∧ ((K (F := F)).sub 20 i).val < grid20.bound 1 := ⟨c.isLt, i.isLt⟩
  rw [defs₀_vector20]; simp only [SparseCore.onTile, hc, and_self, ↓reduceDIte]
  exact (hb.b20 hF d (crd ⟨_, hc.1⟩ ⟨_, hc.2⟩) (xt m d) O W hO).trans (wp_mono frame _ _ fun _ => obl_post)

theorem defs₀_vector21 (c : Fin τ.nSC) (s : Fin τ.nSub) :
    defs₀ (F := F) (.scVector c s) 21 ()
      = SparseCore.onTile hcore21 hsub21 (fun c s => cc21_sc_group (fun | 0 => c | 1 => s | ⟨_ + 2, h⟩ => absurd h (Nat.not_lt.2 (Nat.le_add_left _ _))) (Memref.whole main_v0_scv) (Memref.isWhole_whole _) (Memref.whole main_v22_scv) (Memref.isWhole_whole _) (Memref.whole cc21_scratch0) (Memref.isWhole_whole _) (Memref.whole cc21_scratch1) (Memref.isWhole_whole _) (Memref.whole cc21_scratch2) (Memref.isWhole_whole _) (Memref.whole cc21_scratch3) (Memref.isWhole_whole _) cc21_scratch4 cc21_scratch5 cc21_scratch6 cc21_scratch7) ⟨⟩ c s := rfl

theorem tileObl21 (hF : (K (F := F)).Facts) (hb : TileBodies F) : (K (F := F)).TileObl (D (F := F)) 𝒱 (P m) v₀ 21 := by
  intro d c i O W hO _ _
  simp only [show (P m).ox = fun _ _ => 0 from rfl, add_zero]
  change _ ⊢ wp _ _ _ (Pipeline.liftProg (defs₀ (F := F) (.scVector ((K (F := F)).core 21 c) ((K (F := F)).sub 21 i)) 21 ())) _
  refine BI.Entails.trans ?_ (Pipeline.wp_liftProg (D (F := F)) (Pipeline.defs_kernel pcfgs defs₀) 𝒱₀ _ Set.univ none _ _)
  have hc : ((K (F := F)).core 21 c).val < grid21.bound 0 ∧ ((K (F := F)).sub 21 i).val < grid21.bound 1 := ⟨c.isLt, i.isLt⟩
  rw [defs₀_vector21]; simp only [SparseCore.onTile, hc, and_self, ↓reduceDIte]
  exact (hb.b21 hF d (crd ⟨_, hc.1⟩ ⟨_, hc.2⟩) (xt m d) O W hO).trans (wp_mono frame _ _ fun _ => obl_post)

theorem tileObl (hF : (K (F := F)).Facts) (hb : TileBodies F) (q : Fin 22) : (K (F := F)).TileObl (D (F := F)) 𝒱 (P m) v₀ q := match q with
  | 0 => tileObl0 m hF hb
  | 1 => tileObl1 m hF hb
  | 2 => tileObl2 m hF hb
  | 3 => tileObl3 m hF hb
  | 4 => tileObl4 m hF hb
  | 5 => tileObl5 m hF hb
  | 6 => tileObl6 m hF hb
  | 7 => tileObl7 m hF hb
  | 8 => tileObl8 m hF hb
  | 9 => tileObl9 m hF hb
  | 10 => tileObl10 m hF hb
  | 11 => tileObl11 m hF hb
  | 12 => tileObl12 m hF hb
  | 13 => tileObl13 m hF hb
  | 14 => tileObl14 m hF hb
  | 15 => tileObl15 m hF hb
  | 16 => tileObl16 m hF hb
  | 17 => tileObl17 m hF hb
  | 18 => tileObl18 m hF hb
  | 19 => tileObl19 m hF hb
  | 20 => tileObl20 m hF hb
  | 21 => tileObl21 m hF hb
  | ⟨_ + 22, h⟩ => absurd h (Nat.not_lt.2 (Nat.le_add_left _ _))

end Cert.Proof.LaunchKB

end
-- ==== Proof.LaunchValueB.lean ====
/-
  Result q of the kernel's program as a term of the argument — row q of the transpose, reshaped to a 1600000 × 1
  array — is column q of the argument.
-/
import proofs.«206869_g37898791420194_cont_8to1_b_558_20_alg».proof.Proof.Gen.Kernel
import proofs.«206869_g37898791420194_cont_8to1_b_558_20_alg».proof.Proof.Spec
import Idealize.ShloMosaic.Lib.Pipeline.Value
import Idealize.ShloMosaic.Lib.ValueIdx

noncomputable section

namespace Cert.Proof.LaunchKB

open Cert.Kernel Cert.Kernel.Gen
open Idealize.ShloMosaic Idealize.ShloMosaic.ValueIdx

/-- Result q as a term of the argument: row q of the transpose, reshaped to a column. -/
def resT {α : Type} (q : Fin 22) (x : S1600000x22.Idx → α) : S1600000x1.Idx → α :=
  fun i => shapeCast S1600000x1 (Cert.Spec.row q (transpose S22x1600000 [1, 0] x transposes_S1600000x22_S22x1600000_1_0)) shapeCasts_S1600000_S1600000x1 i

/-- Entry (i, 0) of the reshaped row is entry i of the row, which is entry (q, i) of the transpose, which is entry
    (i, q) of the argument. -/
theorem result_eq {α : Type} (q : Fin 22) (x : S1600000x22.Idx → α) : resT q x = Cert.Spec.col q x := by
  funext y
  unfold resT
  have h1 : (y 1).val = 0 := by have h : (y 1).val < 1 := (y 1).isLt; omega
  rw [shapeCast_apply _ _ y (ix1 (n := 1600000) (y 0))
    (by rw [Shape.rowMajor_val_one, Shape.rowMajor_val_two]; show (y 0).val = (y 0).val * 1 + (y 1).val; omega)]
  show transpose S22x1600000 [1, 0] x transposes_S1600000x22_S22x1600000_1_0 (ix2 (n0 := 22) (n1 := 1600000) q (y 0)) = x (ix2 (n0 := 1600000) (n1 := 22) (y 0) q)
  exact transpose_apply [1, 0] x _ _ (ix2 (n0 := 1600000) (n1 := 22) (y 0) q) (by intro b; fin_cases b <;> rfl)

end Cert.Proof.LaunchKB

end
-- ==== Proof.CallPiecesB0.lean ====
/-
  The pieces of one call: row q of the transposed argument, held at some contents, is the 32 vector subcores' pieces of
  it; result q, held whole at some contents, is their pieces of it.
-/
import proofs.«206869_g37898791420194_cont_8to1_b_558_20_alg».proof.Proof.TileB0Defs
import proofs.«206869_g37898791420194_cont_8to1_b_558_20_alg».proof.Proof.LaunchPieces

noncomputable section

namespace Cert.Proof.CallB0

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic
open Cert.Proof.Pieces (crd)

variable {F : FTy → Type}

abbrev UU : Type := URounds (GSem nD τ sig) ℕ × Counters
local notation "𝕄" => MT nD τ sig (HIx 22) (Elt F) ℕ UU ℕ

/-- The call's number. -/
abbrev qK : Fin 22 := 0
theorem hq : qK.val < 22 := qK.isLt

abbrev vx' : DevRef τ sig := Proc.devRef .tc (main_v0 : Ref sig .tc)
abbrev vo' : DevRef τ sig := Proc.devRef .tc (main_v1 : Ref sig .tc)
abbrev ℓx (d : Dev nD) : Loc nD τ sig := (SparseCore.T d).loc main_v0
abbrev ℓo (d : Dev nD) : Loc nD τ sig := (SparseCore.T d).loc main_v1

variable [FloatOps F]

/-- Row q of the transposed argument, held at contents f, is the tasks' pieces of it. -/
theorem x_pieces (d : Dev nD) (f : Buf (Elt F) (ℓx d)) :
    (ℓx d ↦[(Pieces.rowSet qK.val : Finset (Idx (ℓx d)))]{fullShare} f : sProp 𝕄)
      = bigSep Finset.univ fun c : Fin 2 => bigSep Finset.univ fun s : Fin 16 => bigSep (Finset.range 18) (TileB0.xP d (crd c s) f) := by
  rw [← Pieces.in_cover qK.val hq, pointsTo_biUnion _ _ (Pieces.in_disj qK.val hq), Pieces.bigSep_tris]
  refine bigSep_congr fun c _ => bigSep_congr fun s _ => bigSep_congr fun n _ => ?_
  unfold TileB0.xP
  by_cases h : TileB0.valid (crd c s) n
  · rw [if_pos h, if_pos (show Pieces.pnum (c, s, n) < 500 from (TileB0.valid_iff _ _).mp h)]
    show _ = ((TileB0.inM (crd c s) n).view.loc (TileB0.thr d (crd c s)) ↦[(TileB0.inM (crd c s) n).view.set]{fullShare} f)
    rw [show (TileB0.inM (crd c s) n).view.set = Pieces.inSet qK.val hq (c, s, n) from View.set_slice_whole _ _]
  · rw [if_neg h, if_neg (show ¬ Pieces.pnum (c, s, n) < 500 from fun h' => h ((TileB0.valid_iff _ _).mpr h'))]
    rfl

/-- Result q, held whole at contents g, is the tasks' pieces of it at g. -/
theorem o_pieces (d : Dev nD) (g : Buf (Elt F) (ℓo d)) :
    (ℓo d ↦{fullShare} g : sProp 𝕄)
      = bigSep Finset.univ fun c : Fin 2 => bigSep Finset.univ fun s : Fin 16 => bigSep (Finset.range 18) fun n =>
          if TileB0.valid (crd c s) n then
            ((TileB0.outM (crd c s) n).view.loc (TileB0.thr d (crd c s)) ↦[(TileB0.outM (crd c s) n).view.set]{fullShare} g : sProp 𝕄)
          else iprop(emp) := by
  show (ℓo d ↦[(Finset.univ : Finset (Idx (ℓo d)))]{fullShare} g : sProp 𝕄) = _
  rw [← Pieces.out_cover, pointsTo_biUnion _ _ Pieces.out_disj, Pieces.bigSep_tris]
  refine bigSep_congr fun c _ => bigSep_congr fun s _ => bigSep_congr fun n _ => ?_
  by_cases h : TileB0.valid (crd c s) n
  · rw [if_pos h, if_pos (show Pieces.pnum (c, s, n) < 500 from (TileB0.valid_iff _ _).mp h)]
    rw [show (TileB0.outM (crd c s) n).view.set = Pieces.outSet (c, s, n) from View.set_slice_whole _ _]
  · rw [if_neg h, if_neg (show ¬ Pieces.pnum (c, s, n) < 500 from fun h' => h ((TileB0.valid_iff _ _).mpr h'))]
    rfl

end Cert.Proof.CallB0

end
-- ==== Proof.LaunchStepB0.lean ====
/-
  One call of a copy kernel, run from the TensorCore: from the TensorCore's buffers held at a valuation whose transposed
  argument is the transpose, the call leaves them at the same valuation but for result q, which holds row q.
-/
import proofs.«206869_g37898791420194_cont_8to1_b_558_20_alg».proof.Proof.LaunchPB
import proofs.«206869_g37898791420194_cont_8to1_b_558_20_alg».proof.Proof.CallPiecesB0

noncomputable section

namespace Cert.Proof.CallB0

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic
open Idealize.ShloMosaic.StableHlo (tcRefs devRef_mem_tcRefs held_sub_split held_congr)
open Cert.Proof.Pieces (crd)
open Cert.Proof.LaunchKB (K D 𝒱 𝒱₀ v₀ EH P xt)

variable {F : FTy → Type}

local notation "𝕄" => MT nD τ sig (HIx 22) (Elt F) ℕ UU ℕ

variable (m : (ℓ : Loc nD τ sig) → Buf (Elt F) ℓ)
variable [FloatOps F]

/-- Result q held whole at some contents gives every task its pieces of it, each at some contents. -/
theorem o_pieces_ex (d : Dev nD) (g : Buf (Elt F) (ℓo d)) :
    (ℓo d ↦{fullShare} g : sProp 𝕄)
      ⊢ bigSep Finset.univ fun c : Fin 2 => bigSep Finset.univ fun s : Fin 16 => bigSep (Finset.range 18) (TileB0.oP (F := F) d (crd c s)) := by
  rw [o_pieces d g]
  refine bigSep_mono fun c _ => bigSep_mono fun s _ => bigSep_mono fun n _ => ?_
  unfold TileB0.oP
  by_cases h : TileB0.valid (crd c s) n
  · rw [if_pos h, if_pos h]
    exact exists_intro (Φ := fun f => (((TileB0.outM (crd c s) n).view.loc (TileB0.thr d (crd c s)) ↦[(TileB0.outM (crd c s) n).view.set]{fullShare} f : sProp 𝕄))) g
  · rw [if_neg h, if_neg h]; exact BI.Entails.refl _

/-- The tasks' pieces of result q, each holding row q of f, are result q whole holding that row. -/
theorem o_pieces_row (d : Dev nD) (f : Buf (Elt F) (ℓx d)) :
    (bigSep Finset.univ fun c : Fin 2 => bigSep Finset.univ fun s : Fin 16 => bigSep (Finset.range 18) (TileB0.oQ d (crd c s) f))
      = (ℓo d ↦{fullShare} (Cert.Spec.row qK f : Buf (Elt F) (ℓo d)) : sProp 𝕄) := by
  rw [o_pieces d (Cert.Spec.row qK f : Buf (Elt F) (ℓo d))]
  rfl

omit [FloatOps F] in
/-- A separating conjunction over the call's grid of vector subcores, or of SparseCores, is one over sixteen, or two. -/
theorem bigSep_castSub (Φ : Fin 16 → sProp 𝕄) :
    (bigSep Finset.univ fun i : Fin ((K (F := F)).nSub qK) => Φ (i.cast (LaunchKB.nSub_eq qK))) = bigSep Finset.univ Φ :=
  bigSep_congr fun _ _ => congrArg Φ (Fin.ext rfl)
omit [FloatOps F] in
theorem bigSep_castCore (Φ : Fin 2 → sProp 𝕄) :
    (bigSep Finset.univ fun c : Fin ((K (F := F)).nCore qK) => Φ (c.cast (LaunchKB.nCore_eq qK))) = bigSep Finset.univ Φ :=
  bigSep_congr fun _ _ => congrArg Φ (Fin.ext rfl)

theorem goQ_eq (d : Dev nD) (c : Fin 2) (s : Fin 16) : LaunchKB.goQ m qK d c s = TileB0.goRes d (crd c s) (xt m d) := rfl
theorem tdQ_eq (d : Dev nD) (c : Fin 2) (s : Fin 16) : LaunchKB.tdQ m qK d c s = TileB0.tdRes d (crd c s) (xt m d) := rfl

/-- What the call takes for the two SparseCores: every task's pieces. -/
theorem st_eq (d : Dev nD) :
    (bigSep Finset.univ fun c : Fin ((K (F := F)).nCore qK) => (P m).st qK d c)
      = iprop((bigSep Finset.univ fun c : Fin 2 => bigSep Finset.univ fun s : Fin 16 => bigSep (Finset.range 18) (TileB0.xP d (crd c s) (xt m d)))
          ∗ (bigSep Finset.univ fun c : Fin 2 => bigSep Finset.univ fun s : Fin 16 => bigSep (Finset.range 18) (TileB0.oP (F := F) d (crd c s)))) := by
  have h1 : (bigSep Finset.univ fun c : Fin ((K (F := F)).nCore qK) => (P m).st qK d c)
      = bigSep Finset.univ fun c : Fin ((K (F := F)).nCore qK) =>
          (fun c' : Fin 2 => bigSep (Finset.univ : Finset (Fin 16)) fun s => LaunchKB.goQ m qK d c' s) (c.cast (LaunchKB.nCore_eq qK)) :=
    bigSep_congr fun c _ => bigSep_castSub (fun s => LaunchKB.goQ m qK d (c.cast (LaunchKB.nCore_eq qK)) s)
  rw [h1, bigSep_castCore (fun c' : Fin 2 => bigSep (Finset.univ : Finset (Fin 16)) fun s => LaunchKB.goQ m qK d c' s), ← bigSep_sep']
  refine bigSep_congr fun c _ => ?_
  rw [← bigSep_sep']
  refine bigSep_congr fun s _ => ?_
  rw [goQ_eq]; rfl

/-- What it hands back. -/
theorem dn_eq (d : Dev nD) :
    (bigSep Finset.univ fun c : Fin ((K (F := F)).nCore qK) => (P m).dn qK d c)
      = iprop((bigSep Finset.univ fun c : Fin 2 => bigSep Finset.univ fun s : Fin 16 => bigSep (Finset.range 18) (TileB0.xP d (crd c s) (xt m d)))
          ∗ (bigSep Finset.univ fun c : Fin 2 => bigSep Finset.univ fun s : Fin 16 => bigSep (Finset.range 18) (TileB0.oQ d (crd c s) (xt m d)))) := by
  have h1 : (bigSep Finset.univ fun c : Fin ((K (F := F)).nCore qK) => (P m).dn qK d c)
      = bigSep Finset.univ fun c : Fin ((K (F := F)).nCore qK) =>
          (fun c' : Fin 2 => bigSep (Finset.univ : Finset (Fin 16)) fun s => LaunchKB.tdQ m qK d c' s) (c.cast (LaunchKB.nCore_eq qK)) :=
    bigSep_congr fun c _ => bigSep_castSub (fun s => LaunchKB.tdQ m qK d (c.cast (LaunchKB.nCore_eq qK)) s)
  rw [h1, bigSep_castCore (fun c' : Fin 2 => bigSep (Finset.univ : Finset (Fin 16)) fun s => LaunchKB.tdQ m qK d c' s), ← bigSep_sep']
  refine bigSep_congr fun c _ => ?_
  rw [← bigSep_sep']
  refine bigSep_congr fun s _ => ?_
  rw [tdQ_eq]; rfl

omit [FloatOps F] in
theorem pair_sub : ({vx', vo'} : Finset (DevRef τ sig)) ⊆ tcRefs τ sig :=
  Finset.insert_subset (devRef_mem_tcRefs _) (Finset.singleton_subset_iff.mpr (devRef_mem_tcRefs _))

omit [FloatOps F] in
theorem held_pair (d : Dev nD) (V : Valuation τ sig (Elt F)) :
    (held (SparseCore.T d) ({vx', vo'} : Finset (DevRef τ sig)) V : sProp 𝕄) = iprop((ℓx d ↦{fullShare} V vx') ∗ (ℓo d ↦{fullShare} V vo')) := by
  unfold held; rw [SparseCore.bigSep_insert' (by decide), bigSep_singleton]

/-- What the call does to the TensorCore's buffers, as an operation on valuations: result q takes row q of the transpose. -/
abbrev opC (d : Dev nD) : HloOp τ sig (Elt F) := StableHlo.nullary main_v1 (Cert.Spec.row qK (xt m d))

/-- The call, from the TensorCore's buffers held at a valuation V whose transposed argument is the transpose: it
    leaves them at V but for result q, which holds row q of the transpose. -/
theorem step (κ : GSem nD τ sig → ℕ) (d : Dev nD) (V : Valuation τ sig (Elt F)) (hV : V vx' = xt m d) {Φ : PUnit → sProp 𝕄} :
    iprop((K (F := F)).ctx EH (P m) κ ∗ (K (F := F)).tcSt EH d qK.val ∗ held (SparseCore.T d) (tcRefs τ sig) V
        ∗ (((K (F := F)).tcSt EH d (qK.val + 1) ∗ held (SparseCore.T d) (tcRefs τ sig) ((opC m d).result V)) -∗ Φ ⟨⟩))
      ⊢ wp frame (wpE ((K (F := F)).defs (D (F := F))) 𝒱 (SparseCore.T d) none) Set.univ ((K (F := F)).run d qK) Φ := by
  rw [held_sub_split (SparseCore.T d) pair_sub V, held_pair, hV]
  iintro ⟨#Hctx, Hst, ⟨⟨Hx, Ho⟩, Hrest⟩, Hk⟩
  ihave Hx' := (pointsTo_split_subset (q := fullShare) (f := xt m d) (Finset.subset_univ (Pieces.rowSet qK.val : Finset (Idx (ℓx d))))).1 $$ Hx
  icases Hx' with ⟨Hrow, Hxrest⟩
  iapply ((K (F := F)).wp_run (D (F := F)) 𝒱 (EH := EH) (P := P m) κ d qK) $$ [Hst Hrow Ho Hk Hxrest Hrest]
  isplitr; · iexact Hctx
  isplitl [Hst]; · iexact Hst
  isplitl [Hrow Ho]
  · rw [st_eq]
    isplitl [Hrow]
    · iapply (Entails.of_eq (x_pieces d (xt m d))); iexact Hrow
    · iapply (o_pieces_ex d (V vo')); iexact Ho
  iintro ⟨Hst, Hdn⟩
  ihave Hdn' := (Entails.of_eq (dn_eq m d)) $$ Hdn
  icases Hdn' with ⟨Hrow, Ho⟩
  ihave Hrow' := (Entails.of_eq (x_pieces d (xt m d)).symm) $$ Hrow
  ihave Ho' := (Entails.of_eq (o_pieces_row d (xt m d))) $$ Ho
  ihave Hx := (pointsTo_split_subset (q := fullShare) (f := xt m d) (Finset.subset_univ (Pieces.rowSet qK.val : Finset (Idx (ℓx d))))).2 $$ [Hrow' Hxrest]
  · isplitl [Hrow']; · iexact Hrow'
    iexact Hxrest
  iapply Hk
  isplitl [Hst]; · iexact Hst
  rw [held_sub_split (SparseCore.T d) pair_sub ((opC m d).result V), held_pair,
    StableHlo.nullary_result_ne _ _ _ V (show (main_v0 : Ref sig .tc) ≠ main_v1 by decide), StableHlo.nullary_result, hV,
    held_congr (SparseCore.T d) (V := (opC m d).result V) (V' := V)
      (fun b hb => (opC m d).result_of_not_mem V (fun hw => (Finset.mem_sdiff.mp hb).2
        (Finset.mem_insert_of_mem (Finset.mem_singleton.mpr (Finset.mem_singleton.mp hw)))))]
  isplitl [Hx Ho']
  · isplitl [Hx]; · iexact Hx
    iexact Ho'
  · iexact Hrest

end Cert.Proof.CallB0

end
-- ==== Proof.CallPiecesB1.lean ====
/-
  The pieces of one call: row q of the transposed argument, held at some contents, is the 32 vector subcores' pieces of
  it; result q, held whole at some contents, is their pieces of it.
-/
import proofs.«206869_g37898791420194_cont_8to1_b_558_20_alg».proof.Proof.TileB1Defs
import proofs.«206869_g37898791420194_cont_8to1_b_558_20_alg».proof.Proof.LaunchPieces

noncomputable section

namespace Cert.Proof.CallB1

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic
open Cert.Proof.Pieces (crd)

variable {F : FTy → Type}

abbrev UU : Type := URounds (GSem nD τ sig) ℕ × Counters
local notation "𝕄" => MT nD τ sig (HIx 22) (Elt F) ℕ UU ℕ

/-- The call's number. -/
abbrev qK : Fin 22 := 1
theorem hq : qK.val < 22 := qK.isLt

abbrev vx' : DevRef τ sig := Proc.devRef .tc (main_v0 : Ref sig .tc)
abbrev vo' : DevRef τ sig := Proc.devRef .tc (main_v2 : Ref sig .tc)
abbrev ℓx (d : Dev nD) : Loc nD τ sig := (SparseCore.T d).loc main_v0
abbrev ℓo (d : Dev nD) : Loc nD τ sig := (SparseCore.T d).loc main_v2

variable [FloatOps F]

/-- Row q of the transposed argument, held at contents f, is the tasks' pieces of it. -/
theorem x_pieces (d : Dev nD) (f : Buf (Elt F) (ℓx d)) :
    (ℓx d ↦[(Pieces.rowSet qK.val : Finset (Idx (ℓx d)))]{fullShare} f : sProp 𝕄)
      = bigSep Finset.univ fun c : Fin 2 => bigSep Finset.univ fun s : Fin 16 => bigSep (Finset.range 18) (TileB1.xP d (crd c s) f) := by
  rw [← Pieces.in_cover qK.val hq, pointsTo_biUnion _ _ (Pieces.in_disj qK.val hq), Pieces.bigSep_tris]
  refine bigSep_congr fun c _ => bigSep_congr fun s _ => bigSep_congr fun n _ => ?_
  unfold TileB1.xP
  by_cases h : TileB1.valid (crd c s) n
  · rw [if_pos h, if_pos (show Pieces.pnum (c, s, n) < 500 from (TileB1.valid_iff _ _).mp h)]
    show _ = ((TileB1.inM (crd c s) n).view.loc (TileB1.thr d (crd c s)) ↦[(TileB1.inM (crd c s) n).view.set]{fullShare} f)
    rw [show (TileB1.inM (crd c s) n).view.set = Pieces.inSet qK.val hq (c, s, n) from View.set_slice_whole _ _]
  · rw [if_neg h, if_neg (show ¬ Pieces.pnum (c, s, n) < 500 from fun h' => h ((TileB1.valid_iff _ _).mpr h'))]
    rfl

/-- Result q, held whole at contents g, is the tasks' pieces of it at g. -/
theorem o_pieces (d : Dev nD) (g : Buf (Elt F) (ℓo d)) :
    (ℓo d ↦{fullShare} g : sProp 𝕄)
      = bigSep Finset.univ fun c : Fin 2 => bigSep Finset.univ fun s : Fin 16 => bigSep (Finset.range 18) fun n =>
          if TileB1.valid (crd c s) n then
            ((TileB1.outM (crd c s) n).view.loc (TileB1.thr d (crd c s)) ↦[(TileB1.outM (crd c s) n).view.set]{fullShare} g : sProp 𝕄)
          else iprop(emp) := by
  show (ℓo d ↦[(Finset.univ : Finset (Idx (ℓo d)))]{fullShare} g : sProp 𝕄) = _
  rw [← Pieces.out_cover, pointsTo_biUnion _ _ Pieces.out_disj, Pieces.bigSep_tris]
  refine bigSep_congr fun c _ => bigSep_congr fun s _ => bigSep_congr fun n _ => ?_
  by_cases h : TileB1.valid (crd c s) n
  · rw [if_pos h, if_pos (show Pieces.pnum (c, s, n) < 500 from (TileB1.valid_iff _ _).mp h)]
    rw [show (TileB1.outM (crd c s) n).view.set = Pieces.outSet (c, s, n) from View.set_slice_whole _ _]
  · rw [if_neg h, if_neg (show ¬ Pieces.pnum (c, s, n) < 500 from fun h' => h ((TileB1.valid_iff _ _).mpr h'))]
    rfl

end Cert.Proof.CallB1

end
-- ==== Proof.LaunchStepB1.lean ====
/-
  One call of a copy kernel, run from the TensorCore: from the TensorCore's buffers held at a valuation whose transposed
  argument is the transpose, the call leaves them at the same valuation but for result q, which holds row q.
-/
import proofs.«206869_g37898791420194_cont_8to1_b_558_20_alg».proof.Proof.LaunchPB
import proofs.«206869_g37898791420194_cont_8to1_b_558_20_alg».proof.Proof.CallPiecesB1

noncomputable section

namespace Cert.Proof.CallB1

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic
open Idealize.ShloMosaic.StableHlo (tcRefs devRef_mem_tcRefs held_sub_split held_congr)
open Cert.Proof.Pieces (crd)
open Cert.Proof.LaunchKB (K D 𝒱 𝒱₀ v₀ EH P xt)

variable {F : FTy → Type}

local notation "𝕄" => MT nD τ sig (HIx 22) (Elt F) ℕ UU ℕ

variable (m : (ℓ : Loc nD τ sig) → Buf (Elt F) ℓ)
variable [FloatOps F]

/-- Result q held whole at some contents gives every task its pieces of it, each at some contents. -/
theorem o_pieces_ex (d : Dev nD) (g : Buf (Elt F) (ℓo d)) :
    (ℓo d ↦{fullShare} g : sProp 𝕄)
      ⊢ bigSep Finset.univ fun c : Fin 2 => bigSep Finset.univ fun s : Fin 16 => bigSep (Finset.range 18) (TileB1.oP (F := F) d (crd c s)) := by
  rw [o_pieces d g]
  refine bigSep_mono fun c _ => bigSep_mono fun s _ => bigSep_mono fun n _ => ?_
  unfold TileB1.oP
  by_cases h : TileB1.valid (crd c s) n
  · rw [if_pos h, if_pos h]
    exact exists_intro (Φ := fun f => (((TileB1.outM (crd c s) n).view.loc (TileB1.thr d (crd c s)) ↦[(TileB1.outM (crd c s) n).view.set]{fullShare} f : sProp 𝕄))) g
  · rw [if_neg h, if_neg h]; exact BI.Entails.refl _

/-- The tasks' pieces of result q, each holding row q of f, are result q whole holding that row. -/
theorem o_pieces_row (d : Dev nD) (f : Buf (Elt F) (ℓx d)) :
    (bigSep Finset.univ fun c : Fin 2 => bigSep Finset.univ fun s : Fin 16 => bigSep (Finset.range 18) (TileB1.oQ d (crd c s) f))
      = (ℓo d ↦{fullShare} (Cert.Spec.row qK f : Buf (Elt F) (ℓo d)) : sProp 𝕄) := by
  rw [o_pieces d (Cert.Spec.row qK f : Buf (Elt F) (ℓo d))]
  rfl

omit [FloatOps F] in
/-- A separating conjunction over the call's grid of vector subcores, or of SparseCores, is one over sixteen, or two. -/
theorem bigSep_castSub (Φ : Fin 16 → sProp 𝕄) :
    (bigSep Finset.univ fun i : Fin ((K (F := F)).nSub qK) => Φ (i.cast (LaunchKB.nSub_eq qK))) = bigSep Finset.univ Φ :=
  bigSep_congr fun _ _ => congrArg Φ (Fin.ext rfl)
omit [FloatOps F] in
theorem bigSep_castCore (Φ : Fin 2 → sProp 𝕄) :
    (bigSep Finset.univ fun c : Fin ((K (F := F)).nCore qK) => Φ (c.cast (LaunchKB.nCore_eq qK))) = bigSep Finset.univ Φ :=
  bigSep_congr fun _ _ => congrArg Φ (Fin.ext rfl)

theorem goQ_eq (d : Dev nD) (c : Fin 2) (s : Fin 16) : LaunchKB.goQ m qK d c s = TileB1.goRes d (crd c s) (xt m d) := rfl
theorem tdQ_eq (d : Dev nD) (c : Fin 2) (s : Fin 16) : LaunchKB.tdQ m qK d c s = TileB1.tdRes d (crd c s) (xt m d) := rfl

/-- What the call takes for the two SparseCores: every task's pieces. -/
theorem st_eq (d : Dev nD) :
    (bigSep Finset.univ fun c : Fin ((K (F := F)).nCore qK) => (P m).st qK d c)
      = iprop((bigSep Finset.univ fun c : Fin 2 => bigSep Finset.univ fun s : Fin 16 => bigSep (Finset.range 18) (TileB1.xP d (crd c s) (xt m d)))
          ∗ (bigSep Finset.univ fun c : Fin 2 => bigSep Finset.univ fun s : Fin 16 => bigSep (Finset.range 18) (TileB1.oP (F := F) d (crd c s)))) := by
  have h1 : (bigSep Finset.univ fun c : Fin ((K (F := F)).nCore qK) => (P m).st qK d c)
      = bigSep Finset.univ fun c : Fin ((K (F := F)).nCore qK) =>
          (fun c' : Fin 2 => bigSep (Finset.univ : Finset (Fin 16)) fun s => LaunchKB.goQ m qK d c' s) (c.cast (LaunchKB.nCore_eq qK)) :=
    bigSep_congr fun c _ => bigSep_castSub (fun s => LaunchKB.goQ m qK d (c.cast (LaunchKB.nCore_eq qK)) s)
  rw [h1, bigSep_castCore (fun c' : Fin 2 => bigSep (Finset.univ : Finset (Fin 16)) fun s => LaunchKB.goQ m qK d c' s), ← bigSep_sep']
  refine bigSep_congr fun c _ => ?_
  rw [← bigSep_sep']
  refine bigSep_congr fun s _ => ?_
  rw [goQ_eq]; rfl

/-- What it hands back. -/
theorem dn_eq (d : Dev nD) :
    (bigSep Finset.univ fun c : Fin ((K (F := F)).nCore qK) => (P m).dn qK d c)
      = iprop((bigSep Finset.univ fun c : Fin 2 => bigSep Finset.univ fun s : Fin 16 => bigSep (Finset.range 18) (TileB1.xP d (crd c s) (xt m d)))
          ∗ (bigSep Finset.univ fun c : Fin 2 => bigSep Finset.univ fun s : Fin 16 => bigSep (Finset.range 18) (TileB1.oQ d (crd c s) (xt m d)))) := by
  have h1 : (bigSep Finset.univ fun c : Fin ((K (F := F)).nCore qK) => (P m).dn qK d c)
      = bigSep Finset.univ fun c : Fin ((K (F := F)).nCore qK) =>
          (fun c' : Fin 2 => bigSep (Finset.univ : Finset (Fin 16)) fun s => LaunchKB.tdQ m qK d c' s) (c.cast (LaunchKB.nCore_eq qK)) :=
    bigSep_congr fun c _ => bigSep_castSub (fun s => LaunchKB.tdQ m qK d (c.cast (LaunchKB.nCore_eq qK)) s)
  rw [h1, bigSep_castCore (fun c' : Fin 2 => bigSep (Finset.univ : Finset (Fin 16)) fun s => LaunchKB.tdQ m qK d c' s), ← bigSep_sep']
  refine bigSep_congr fun c _ => ?_
  rw [← bigSep_sep']
  refine bigSep_congr fun s _ => ?_
  rw [tdQ_eq]; rfl

omit [FloatOps F] in
theorem pair_sub : ({vx', vo'} : Finset (DevRef τ sig)) ⊆ tcRefs τ sig :=
  Finset.insert_subset (devRef_mem_tcRefs _) (Finset.singleton_subset_iff.mpr (devRef_mem_tcRefs _))

omit [FloatOps F] in
theorem held_pair (d : Dev nD) (V : Valuation τ sig (Elt F)) :
    (held (SparseCore.T d) ({vx', vo'} : Finset (DevRef τ sig)) V : sProp 𝕄) = iprop((ℓx d ↦{fullShare} V vx') ∗ (ℓo d ↦{fullShare} V vo')) := by
  unfold held; rw [SparseCore.bigSep_insert' (by decide), bigSep_singleton]

/-- What the call does to the TensorCore's buffers, as an operation on valuations: result q takes row q of the transpose. -/
abbrev opC (d : Dev nD) : HloOp τ sig (Elt F) := StableHlo.nullary main_v2 (Cert.Spec.row qK (xt m d))

/-- The call, from the TensorCore's buffers held at a valuation V whose transposed argument is the transpose: it
    leaves them at V but for result q, which holds row q of the transpose. -/
theorem step (κ : GSem nD τ sig → ℕ) (d : Dev nD) (V : Valuation τ sig (Elt F)) (hV : V vx' = xt m d) {Φ : PUnit → sProp 𝕄} :
    iprop((K (F := F)).ctx EH (P m) κ ∗ (K (F := F)).tcSt EH d qK.val ∗ held (SparseCore.T d) (tcRefs τ sig) V
        ∗ (((K (F := F)).tcSt EH d (qK.val + 1) ∗ held (SparseCore.T d) (tcRefs τ sig) ((opC m d).result V)) -∗ Φ ⟨⟩))
      ⊢ wp frame (wpE ((K (F := F)).defs (D (F := F))) 𝒱 (SparseCore.T d) none) Set.univ ((K (F := F)).run d qK) Φ := by
  rw [held_sub_split (SparseCore.T d) pair_sub V, held_pair, hV]
  iintro ⟨#Hctx, Hst, ⟨⟨Hx, Ho⟩, Hrest⟩, Hk⟩
  ihave Hx' := (pointsTo_split_subset (q := fullShare) (f := xt m d) (Finset.subset_univ (Pieces.rowSet qK.val : Finset (Idx (ℓx d))))).1 $$ Hx
  icases Hx' with ⟨Hrow, Hxrest⟩
  iapply ((K (F := F)).wp_run (D (F := F)) 𝒱 (EH := EH) (P := P m) κ d qK) $$ [Hst Hrow Ho Hk Hxrest Hrest]
  isplitr; · iexact Hctx
  isplitl [Hst]; · iexact Hst
  isplitl [Hrow Ho]
  · rw [st_eq]
    isplitl [Hrow]
    · iapply (Entails.of_eq (x_pieces d (xt m d))); iexact Hrow
    · iapply (o_pieces_ex d (V vo')); iexact Ho
  iintro ⟨Hst, Hdn⟩
  ihave Hdn' := (Entails.of_eq (dn_eq m d)) $$ Hdn
  icases Hdn' with ⟨Hrow, Ho⟩
  ihave Hrow' := (Entails.of_eq (x_pieces d (xt m d)).symm) $$ Hrow
  ihave Ho' := (Entails.of_eq (o_pieces_row d (xt m d))) $$ Ho
  ihave Hx := (pointsTo_split_subset (q := fullShare) (f := xt m d) (Finset.subset_univ (Pieces.rowSet qK.val : Finset (Idx (ℓx d))))).2 $$ [Hrow' Hxrest]
  · isplitl [Hrow']; · iexact Hrow'
    iexact Hxrest
  iapply Hk
  isplitl [Hst]; · iexact Hst
  rw [held_sub_split (SparseCore.T d) pair_sub ((opC m d).result V), held_pair,
    StableHlo.nullary_result_ne _ _ _ V (show (main_v0 : Ref sig .tc) ≠ main_v2 by decide), StableHlo.nullary_result, hV,
    held_congr (SparseCore.T d) (V := (opC m d).result V) (V' := V)
      (fun b hb => (opC m d).result_of_not_mem V (fun hw => (Finset.mem_sdiff.mp hb).2
        (Finset.mem_insert_of_mem (Finset.mem_singleton.mpr (Finset.mem_singleton.mp hw)))))]
  isplitl [Hx Ho']
  · isplitl [Hx]; · iexact Hx
    iexact Ho'
  · iexact Hrest

end Cert.Proof.CallB1

end
-- ==== Proof.CallPiecesB2.lean ====
/-
  The pieces of one call: row q of the transposed argument, held at some contents, is the 32 vector subcores' pieces of
  it; result q, held whole at some contents, is their pieces of it.
-/
import proofs.«206869_g37898791420194_cont_8to1_b_558_20_alg».proof.Proof.TileB2Defs
import proofs.«206869_g37898791420194_cont_8to1_b_558_20_alg».proof.Proof.LaunchPieces

noncomputable section

namespace Cert.Proof.CallB2

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic
open Cert.Proof.Pieces (crd)

variable {F : FTy → Type}

abbrev UU : Type := URounds (GSem nD τ sig) ℕ × Counters
local notation "𝕄" => MT nD τ sig (HIx 22) (Elt F) ℕ UU ℕ

/-- The call's number. -/
abbrev qK : Fin 22 := 2
theorem hq : qK.val < 22 := qK.isLt

abbrev vx' : DevRef τ sig := Proc.devRef .tc (main_v0 : Ref sig .tc)
abbrev vo' : DevRef τ sig := Proc.devRef .tc (main_v3 : Ref sig .tc)
abbrev ℓx (d : Dev nD) : Loc nD τ sig := (SparseCore.T d).loc main_v0
abbrev ℓo (d : Dev nD) : Loc nD τ sig := (SparseCore.T d).loc main_v3

variable [FloatOps F]

/-- Row q of the transposed argument, held at contents f, is the tasks' pieces of it. -/
theorem x_pieces (d : Dev nD) (f : Buf (Elt F) (ℓx d)) :
    (ℓx d ↦[(Pieces.rowSet qK.val : Finset (Idx (ℓx d)))]{fullShare} f : sProp 𝕄)
      = bigSep Finset.univ fun c : Fin 2 => bigSep Finset.univ fun s : Fin 16 => bigSep (Finset.range 18) (TileB2.xP d (crd c s) f) := by
  rw [← Pieces.in_cover qK.val hq, pointsTo_biUnion _ _ (Pieces.in_disj qK.val hq), Pieces.bigSep_tris]
  refine bigSep_congr fun c _ => bigSep_congr fun s _ => bigSep_congr fun n _ => ?_
  unfold TileB2.xP
  by_cases h : TileB2.valid (crd c s) n
  · rw [if_pos h, if_pos (show Pieces.pnum (c, s, n) < 500 from (TileB2.valid_iff _ _).mp h)]
    show _ = ((TileB2.inM (crd c s) n).view.loc (TileB2.thr d (crd c s)) ↦[(TileB2.inM (crd c s) n).view.set]{fullShare} f)
    rw [show (TileB2.inM (crd c s) n).view.set = Pieces.inSet qK.val hq (c, s, n) from View.set_slice_whole _ _]
  · rw [if_neg h, if_neg (show ¬ Pieces.pnum (c, s, n) < 500 from fun h' => h ((TileB2.valid_iff _ _).mpr h'))]
    rfl

/-- Result q, held whole at contents g, is the tasks' pieces of it at g. -/
theorem o_pieces (d : Dev nD) (g : Buf (Elt F) (ℓo d)) :
    (ℓo d ↦{fullShare} g : sProp 𝕄)
      = bigSep Finset.univ fun c : Fin 2 => bigSep Finset.univ fun s : Fin 16 => bigSep (Finset.range 18) fun n =>
          if TileB2.valid (crd c s) n then
            ((TileB2.outM (crd c s) n).view.loc (TileB2.thr d (crd c s)) ↦[(TileB2.outM (crd c s) n).view.set]{fullShare} g : sProp 𝕄)
          else iprop(emp) := by
  show (ℓo d ↦[(Finset.univ : Finset (Idx (ℓo d)))]{fullShare} g : sProp 𝕄) = _
  rw [← Pieces.out_cover, pointsTo_biUnion _ _ Pieces.out_disj, Pieces.bigSep_tris]
  refine bigSep_congr fun c _ => bigSep_congr fun s _ => bigSep_congr fun n _ => ?_
  by_cases h : TileB2.valid (crd c s) n
  · rw [if_pos h, if_pos (show Pieces.pnum (c, s, n) < 500 from (TileB2.valid_iff _ _).mp h)]
    rw [show (TileB2.outM (crd c s) n).view.set = Pieces.outSet (c, s, n) from View.set_slice_whole _ _]
  · rw [if_neg h, if_neg (show ¬ Pieces.pnum (c, s, n) < 500 from fun h' => h ((TileB2.valid_iff _ _).mpr h'))]
    rfl

end Cert.Proof.CallB2

end
-- ==== Proof.LaunchStepB2.lean ====
/-
  One call of a copy kernel, run from the TensorCore: from the TensorCore's buffers held at a valuation whose transposed
  argument is the transpose, the call leaves them at the same valuation but for result q, which holds row q.
-/
import proofs.«206869_g37898791420194_cont_8to1_b_558_20_alg».proof.Proof.LaunchPB
import proofs.«206869_g37898791420194_cont_8to1_b_558_20_alg».proof.Proof.CallPiecesB2

noncomputable section

namespace Cert.Proof.CallB2

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic
open Idealize.ShloMosaic.StableHlo (tcRefs devRef_mem_tcRefs held_sub_split held_congr)
open Cert.Proof.Pieces (crd)
open Cert.Proof.LaunchKB (K D 𝒱 𝒱₀ v₀ EH P xt)

variable {F : FTy → Type}

local notation "𝕄" => MT nD τ sig (HIx 22) (Elt F) ℕ UU ℕ

variable (m : (ℓ : Loc nD τ sig) → Buf (Elt F) ℓ)
variable [FloatOps F]

/-- Result q held whole at some contents gives every task its pieces of it, each at some contents. -/
theorem o_pieces_ex (d : Dev nD) (g : Buf (Elt F) (ℓo d)) :
    (ℓo d ↦{fullShare} g : sProp 𝕄)
      ⊢ bigSep Finset.univ fun c : Fin 2 => bigSep Finset.univ fun s : Fin 16 => bigSep (Finset.range 18) (TileB2.oP (F := F) d (crd c s)) := by
  rw [o_pieces d g]
  refine bigSep_mono fun c _ => bigSep_mono fun s _ => bigSep_mono fun n _ => ?_
  unfold TileB2.oP
  by_cases h : TileB2.valid (crd c s) n
  · rw [if_pos h, if_pos h]
    exact exists_intro (Φ := fun f => (((TileB2.outM (crd c s) n).view.loc (TileB2.thr d (crd c s)) ↦[(TileB2.outM (crd c s) n).view.set]{fullShare} f : sProp 𝕄))) g
  · rw [if_neg h, if_neg h]; exact BI.Entails.refl _

/-- The tasks' pieces of result q, each holding row q of f, are result q whole holding that row. -/
theorem o_pieces_row (d : Dev nD) (f : Buf (Elt F) (ℓx d)) :
    (bigSep Finset.univ fun c : Fin 2 => bigSep Finset.univ fun s : Fin 16 => bigSep (Finset.range 18) (TileB2.oQ d (crd c s) f))
      = (ℓo d ↦{fullShare} (Cert.Spec.row qK f : Buf (Elt F) (ℓo d)) : sProp 𝕄) := by
  rw [o_pieces d (Cert.Spec.row qK f : Buf (Elt F) (ℓo d))]
  rfl

omit [FloatOps F] in
/-- A separating conjunction over the call's grid of vector subcores, or of SparseCores, is one over sixteen, or two. -/
theorem bigSep_castSub (Φ : Fin 16 → sProp 𝕄) :
    (bigSep Finset.univ fun i : Fin ((K (F := F)).nSub qK) => Φ (i.cast (LaunchKB.nSub_eq qK))) = bigSep Finset.univ Φ :=
  bigSep_congr fun _ _ => congrArg Φ (Fin.ext rfl)
omit [FloatOps F] in
theorem bigSep_castCore (Φ : Fin 2 → sProp 𝕄) :
    (bigSep Finset.univ fun c : Fin ((K (F := F)).nCore qK) => Φ (c.cast (LaunchKB.nCore_eq qK))) = bigSep Finset.univ Φ :=
  bigSep_congr fun _ _ => congrArg Φ (Fin.ext rfl)

theorem goQ_eq (d : Dev nD) (c : Fin 2) (s : Fin 16) : LaunchKB.goQ m qK d c s = TileB2.goRes d (crd c s) (xt m d) := rfl
theorem tdQ_eq (d : Dev nD) (c : Fin 2) (s : Fin 16) : LaunchKB.tdQ m qK d c s = TileB2.tdRes d (crd c s) (xt m d) := rfl

/-- What the call takes for the two SparseCores: every task's pieces. -/
theorem st_eq (d : Dev nD) :
    (bigSep Finset.univ fun c : Fin ((K (F := F)).nCore qK) => (P m).st qK d c)
      = iprop((bigSep Finset.univ fun c : Fin 2 => bigSep Finset.univ fun s : Fin 16 => bigSep (Finset.range 18) (TileB2.xP d (crd c s) (xt m d)))
          ∗ (bigSep Finset.univ fun c : Fin 2 => bigSep Finset.univ fun s : Fin 16 => bigSep (Finset.range 18) (TileB2.oP (F := F) d (crd c s)))) := by
  have h1 : (bigSep Finset.univ fun c : Fin ((K (F := F)).nCore qK) => (P m).st qK d c)
      = bigSep Finset.univ fun c : Fin ((K (F := F)).nCore qK) =>
          (fun c' : Fin 2 => bigSep (Finset.univ : Finset (Fin 16)) fun s => LaunchKB.goQ m qK d c' s) (c.cast (LaunchKB.nCore_eq qK)) :=
    bigSep_congr fun c _ => bigSep_castSub (fun s => LaunchKB.goQ m qK d (c.cast (LaunchKB.nCore_eq qK)) s)
  rw [h1, bigSep_castCore (fun c' : Fin 2 => bigSep (Finset.univ : Finset (Fin 16)) fun s => LaunchKB.goQ m qK d c' s), ← bigSep_sep']
  refine bigSep_congr fun c _ => ?_
  rw [← bigSep_sep']
  refine bigSep_congr fun s _ => ?_
  rw [goQ_eq]; rfl

/-- What it hands back. -/
theorem dn_eq (d : Dev nD) :
    (bigSep Finset.univ fun c : Fin ((K (F := F)).nCore qK) => (P m).dn qK d c)
      = iprop((bigSep Finset.univ fun c : Fin 2 => bigSep Finset.univ fun s : Fin 16 => bigSep (Finset.range 18) (TileB2.xP d (crd c s) (xt m d)))
          ∗ (bigSep Finset.univ fun c : Fin 2 => bigSep Finset.univ fun s : Fin 16 => bigSep (Finset.range 18) (TileB2.oQ d (crd c s) (xt m d)))) := by
  have h1 : (bigSep Finset.univ fun c : Fin ((K (F := F)).nCore qK) => (P m).dn qK d c)
      = bigSep Finset.univ fun c : Fin ((K (F := F)).nCore qK) =>
          (fun c' : Fin 2 => bigSep (Finset.univ : Finset (Fin 16)) fun s => LaunchKB.tdQ m qK d c' s) (c.cast (LaunchKB.nCore_eq qK)) :=
    bigSep_congr fun c _ => bigSep_castSub (fun s => LaunchKB.tdQ m qK d (c.cast (LaunchKB.nCore_eq qK)) s)
  rw [h1, bigSep_castCore (fun c' : Fin 2 => bigSep (Finset.univ : Finset (Fin 16)) fun s => LaunchKB.tdQ m qK d c' s), ← bigSep_sep']
  refine bigSep_congr fun c _ => ?_
  rw [← bigSep_sep']
  refine bigSep_congr fun s _ => ?_
  rw [tdQ_eq]; rfl

omit [FloatOps F] in
theorem pair_sub : ({vx', vo'} : Finset (DevRef τ sig)) ⊆ tcRefs τ sig :=
  Finset.insert_subset (devRef_mem_tcRefs _) (Finset.singleton_subset_iff.mpr (devRef_mem_tcRefs _))

omit [FloatOps F] in
theorem held_pair (d : Dev nD) (V : Valuation τ sig (Elt F)) :
    (held (SparseCore.T d) ({vx', vo'} : Finset (DevRef τ sig)) V : sProp 𝕄) = iprop((ℓx d ↦{fullShare} V vx') ∗ (ℓo d ↦{fullShare} V vo')) := by
  unfold held; rw [SparseCore.bigSep_insert' (by decide), bigSep_singleton]

/-- What the call does to the TensorCore's buffers, as an operation on valuations: result q takes row q of the transpose. -/
abbrev opC (d : Dev nD) : HloOp τ sig (Elt F) := StableHlo.nullary main_v3 (Cert.Spec.row qK (xt m d))

/-- The call, from the TensorCore's buffers held at a valuation V whose transposed argument is the transpose: it
    leaves them at V but for result q, which holds row q of the transpose. -/
theorem step (κ : GSem nD τ sig → ℕ) (d : Dev nD) (V : Valuation τ sig (Elt F)) (hV : V vx' = xt m d) {Φ : PUnit → sProp 𝕄} :
    iprop((K (F := F)).ctx EH (P m) κ ∗ (K (F := F)).tcSt EH d qK.val ∗ held (SparseCore.T d) (tcRefs τ sig) V
        ∗ (((K (F := F)).tcSt EH d (qK.val + 1) ∗ held (SparseCore.T d) (tcRefs τ sig) ((opC m d).result V)) -∗ Φ ⟨⟩))
      ⊢ wp frame (wpE ((K (F := F)).defs (D (F := F))) 𝒱 (SparseCore.T d) none) Set.univ ((K (F := F)).run d qK) Φ := by
  rw [held_sub_split (SparseCore.T d) pair_sub V, held_pair, hV]
  iintro ⟨#Hctx, Hst, ⟨⟨Hx, Ho⟩, Hrest⟩, Hk⟩
  ihave Hx' := (pointsTo_split_subset (q := fullShare) (f := xt m d) (Finset.subset_univ (Pieces.rowSet qK.val : Finset (Idx (ℓx d))))).1 $$ Hx
  icases Hx' with ⟨Hrow, Hxrest⟩
  iapply ((K (F := F)).wp_run (D (F := F)) 𝒱 (EH := EH) (P := P m) κ d qK) $$ [Hst Hrow Ho Hk Hxrest Hrest]
  isplitr; · iexact Hctx
  isplitl [Hst]; · iexact Hst
  isplitl [Hrow Ho]
  · rw [st_eq]
    isplitl [Hrow]
    · iapply (Entails.of_eq (x_pieces d (xt m d))); iexact Hrow
    · iapply (o_pieces_ex d (V vo')); iexact Ho
  iintro ⟨Hst, Hdn⟩
  ihave Hdn' := (Entails.of_eq (dn_eq m d)) $$ Hdn
  icases Hdn' with ⟨Hrow, Ho⟩
  ihave Hrow' := (Entails.of_eq (x_pieces d (xt m d)).symm) $$ Hrow
  ihave Ho' := (Entails.of_eq (o_pieces_row d (xt m d))) $$ Ho
  ihave Hx := (pointsTo_split_subset (q := fullShare) (f := xt m d) (Finset.subset_univ (Pieces.rowSet qK.val : Finset (Idx (ℓx d))))).2 $$ [Hrow' Hxrest]
  · isplitl [Hrow']; · iexact Hrow'
    iexact Hxrest
  iapply Hk
  isplitl [Hst]; · iexact Hst
  rw [held_sub_split (SparseCore.T d) pair_sub ((opC m d).result V), held_pair,
    StableHlo.nullary_result_ne _ _ _ V (show (main_v0 : Ref sig .tc) ≠ main_v3 by decide), StableHlo.nullary_result, hV,
    held_congr (SparseCore.T d) (V := (opC m d).result V) (V' := V)
      (fun b hb => (opC m d).result_of_not_mem V (fun hw => (Finset.mem_sdiff.mp hb).2
        (Finset.mem_insert_of_mem (Finset.mem_singleton.mpr (Finset.mem_singleton.mp hw)))))]
  isplitl [Hx Ho']
  · isplitl [Hx]; · iexact Hx
    iexact Ho'
  · iexact Hrest

end Cert.Proof.CallB2

end
-- ==== Proof.CallPiecesB3.lean ====
/-
  The pieces of one call: row q of the transposed argument, held at some contents, is the 32 vector subcores' pieces of
  it; result q, held whole at some contents, is their pieces of it.
-/
import proofs.«206869_g37898791420194_cont_8to1_b_558_20_alg».proof.Proof.TileB3Defs
import proofs.«206869_g37898791420194_cont_8to1_b_558_20_alg».proof.Proof.LaunchPieces

noncomputable section

namespace Cert.Proof.CallB3

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic
open Cert.Proof.Pieces (crd)

variable {F : FTy → Type}

abbrev UU : Type := URounds (GSem nD τ sig) ℕ × Counters
local notation "𝕄" => MT nD τ sig (HIx 22) (Elt F) ℕ UU ℕ

/-- The call's number. -/
abbrev qK : Fin 22 := 3
theorem hq : qK.val < 22 := qK.isLt

abbrev vx' : DevRef τ sig := Proc.devRef .tc (main_v0 : Ref sig .tc)
abbrev vo' : DevRef τ sig := Proc.devRef .tc (main_v4 : Ref sig .tc)
abbrev ℓx (d : Dev nD) : Loc nD τ sig := (SparseCore.T d).loc main_v0
abbrev ℓo (d : Dev nD) : Loc nD τ sig := (SparseCore.T d).loc main_v4

variable [FloatOps F]

/-- Row q of the transposed argument, held at contents f, is the tasks' pieces of it. -/
theorem x_pieces (d : Dev nD) (f : Buf (Elt F) (ℓx d)) :
    (ℓx d ↦[(Pieces.rowSet qK.val : Finset (Idx (ℓx d)))]{fullShare} f : sProp 𝕄)
      = bigSep Finset.univ fun c : Fin 2 => bigSep Finset.univ fun s : Fin 16 => bigSep (Finset.range 18) (TileB3.xP d (crd c s) f) := by
  rw [← Pieces.in_cover qK.val hq, pointsTo_biUnion _ _ (Pieces.in_disj qK.val hq), Pieces.bigSep_tris]
  refine bigSep_congr fun c _ => bigSep_congr fun s _ => bigSep_congr fun n _ => ?_
  unfold TileB3.xP
  by_cases h : TileB3.valid (crd c s) n
  · rw [if_pos h, if_pos (show Pieces.pnum (c, s, n) < 500 from (TileB3.valid_iff _ _).mp h)]
    show _ = ((TileB3.inM (crd c s) n).view.loc (TileB3.thr d (crd c s)) ↦[(TileB3.inM (crd c s) n).view.set]{fullShare} f)
    rw [show (TileB3.inM (crd c s) n).view.set = Pieces.inSet qK.val hq (c, s, n) from View.set_slice_whole _ _]
  · rw [if_neg h, if_neg (show ¬ Pieces.pnum (c, s, n) < 500 from fun h' => h ((TileB3.valid_iff _ _).mpr h'))]
    rfl

/-- Result q, held whole at contents g, is the tasks' pieces of it at g. -/
theorem o_pieces (d : Dev nD) (g : Buf (Elt F) (ℓo d)) :
    (ℓo d ↦{fullShare} g : sProp 𝕄)
      = bigSep Finset.univ fun c : Fin 2 => bigSep Finset.univ fun s : Fin 16 => bigSep (Finset.range 18) fun n =>
          if TileB3.valid (crd c s) n then
            ((TileB3.outM (crd c s) n).view.loc (TileB3.thr d (crd c s)) ↦[(TileB3.outM (crd c s) n).view.set]{fullShare} g : sProp 𝕄)
          else iprop(emp) := by
  show (ℓo d ↦[(Finset.univ : Finset (Idx (ℓo d)))]{fullShare} g : sProp 𝕄) = _
  rw [← Pieces.out_cover, pointsTo_biUnion _ _ Pieces.out_disj, Pieces.bigSep_tris]
  refine bigSep_congr fun c _ => bigSep_congr fun s _ => bigSep_congr fun n _ => ?_
  by_cases h : TileB3.valid (crd c s) n
  · rw [if_pos h, if_pos (show Pieces.pnum (c, s, n) < 500 from (TileB3.valid_iff _ _).mp h)]
    rw [show (TileB3.outM (crd c s) n).view.set = Pieces.outSet (c, s, n) from View.set_slice_whole _ _]
  · rw [if_neg h, if_neg (show ¬ Pieces.pnum (c, s, n) < 500 from fun h' => h ((TileB3.valid_iff _ _).mpr h'))]
    rfl

end Cert.Proof.CallB3

end
-- ==== Proof.LaunchStepB3.lean ====
/-
  One call of a copy kernel, run from the TensorCore: from the TensorCore's buffers held at a valuation whose transposed
  argument is the transpose, the call leaves them at the same valuation but for result q, which holds row q.
-/
import proofs.«206869_g37898791420194_cont_8to1_b_558_20_alg».proof.Proof.LaunchPB
import proofs.«206869_g37898791420194_cont_8to1_b_558_20_alg».proof.Proof.CallPiecesB3

noncomputable section

namespace Cert.Proof.CallB3

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic
open Idealize.ShloMosaic.StableHlo (tcRefs devRef_mem_tcRefs held_sub_split held_congr)
open Cert.Proof.Pieces (crd)
open Cert.Proof.LaunchKB (K D 𝒱 𝒱₀ v₀ EH P xt)

variable {F : FTy → Type}

local notation "𝕄" => MT nD τ sig (HIx 22) (Elt F) ℕ UU ℕ

variable (m : (ℓ : Loc nD τ sig) → Buf (Elt F) ℓ)
variable [FloatOps F]

/-- Result q held whole at some contents gives every task its pieces of it, each at some contents. -/
theorem o_pieces_ex (d : Dev nD) (g : Buf (Elt F) (ℓo d)) :
    (ℓo d ↦{fullShare} g : sProp 𝕄)
      ⊢ bigSep Finset.univ fun c : Fin 2 => bigSep Finset.univ fun s : Fin 16 => bigSep (Finset.range 18) (TileB3.oP (F := F) d (crd c s)) := by
  rw [o_pieces d g]
  refine bigSep_mono fun c _ => bigSep_mono fun s _ => bigSep_mono fun n _ => ?_
  unfold TileB3.oP
  by_cases h : TileB3.valid (crd c s) n
  · rw [if_pos h, if_pos h]
    exact exists_intro (Φ := fun f => (((TileB3.outM (crd c s) n).view.loc (TileB3.thr d (crd c s)) ↦[(TileB3.outM (crd c s) n).view.set]{fullShare} f : sProp 𝕄))) g
  · rw [if_neg h, if_neg h]; exact BI.Entails.refl _

/-- The tasks' pieces of result q, each holding row q of f, are result q whole holding that row. -/
theorem o_pieces_row (d : Dev nD) (f : Buf (Elt F) (ℓx d)) :
    (bigSep Finset.univ fun c : Fin 2 => bigSep Finset.univ fun s : Fin 16 => bigSep (Finset.range 18) (TileB3.oQ d (crd c s) f))
      = (ℓo d ↦{fullShare} (Cert.Spec.row qK f : Buf (Elt F) (ℓo d)) : sProp 𝕄) := by
  rw [o_pieces d (Cert.Spec.row qK f : Buf (Elt F) (ℓo d))]
  rfl

omit [FloatOps F] in
/-- A separating conjunction over the call's grid of vector subcores, or of SparseCores, is one over sixteen, or two. -/
theorem bigSep_castSub (Φ : Fin 16 → sProp 𝕄) :
    (bigSep Finset.univ fun i : Fin ((K (F := F)).nSub qK) => Φ (i.cast (LaunchKB.nSub_eq qK))) = bigSep Finset.univ Φ :=
  bigSep_congr fun _ _ => congrArg Φ (Fin.ext rfl)
omit [FloatOps F] in
theorem bigSep_castCore (Φ : Fin 2 → sProp 𝕄) :
    (bigSep Finset.univ fun c : Fin ((K (F := F)).nCore qK) => Φ (c.cast (LaunchKB.nCore_eq qK))) = bigSep Finset.univ Φ :=
  bigSep_congr fun _ _ => congrArg Φ (Fin.ext rfl)

theorem goQ_eq (d : Dev nD) (c : Fin 2) (s : Fin 16) : LaunchKB.goQ m qK d c s = TileB3.goRes d (crd c s) (xt m d) := rfl
theorem tdQ_eq (d : Dev nD) (c : Fin 2) (s : Fin 16) : LaunchKB.tdQ m qK d c s = TileB3.tdRes d (crd c s) (xt m d) := rfl

/-- What the call takes for the two SparseCores: every task's pieces. -/
theorem st_eq (d : Dev nD) :
    (bigSep Finset.univ fun c : Fin ((K (F := F)).nCore qK) => (P m).st qK d c)
      = iprop((bigSep Finset.univ fun c : Fin 2 => bigSep Finset.univ fun s : Fin 16 => bigSep (Finset.range 18) (TileB3.xP d (crd c s) (xt m d)))
          ∗ (bigSep Finset.univ fun c : Fin 2 => bigSep Finset.univ fun s : Fin 16 => bigSep (Finset.range 18) (TileB3.oP (F := F) d (crd c s)))) := by
  have h1 : (bigSep Finset.univ fun c : Fin ((K (F := F)).nCore qK) => (P m).st qK d c)
      = bigSep Finset.univ fun c : Fin ((K (F := F)).nCore qK) =>
          (fun c' : Fin 2 => bigSep (Finset.univ : Finset (Fin 16)) fun s => LaunchKB.goQ m qK d c' s) (c.cast (LaunchKB.nCore_eq qK)) :=
    bigSep_congr fun c _ => bigSep_castSub (fun s => LaunchKB.goQ m qK d (c.cast (LaunchKB.nCore_eq qK)) s)
  rw [h1, bigSep_castCore (fun c' : Fin 2 => bigSep (Finset.univ : Finset (Fin 16)) fun s => LaunchKB.goQ m qK d c' s), ← bigSep_sep']
  refine bigSep_congr fun c _ => ?_
  rw [← bigSep_sep']
  refine bigSep_congr fun s _ => ?_
  rw [goQ_eq]; rfl

/-- What it hands back. -/
theorem dn_eq (d : Dev nD) :
    (bigSep Finset.univ fun c : Fin ((K (F := F)).nCore qK) => (P m).dn qK d c)
      = iprop((bigSep Finset.univ fun c : Fin 2 => bigSep Finset.univ fun s : Fin 16 => bigSep (Finset.range 18) (TileB3.xP d (crd c s) (xt m d)))
          ∗ (bigSep Finset.univ fun c : Fin 2 => bigSep Finset.univ fun s : Fin 16 => bigSep (Finset.range 18) (TileB3.oQ d (crd c s) (xt m d)))) := by
  have h1 : (bigSep Finset.univ fun c : Fin ((K (F := F)).nCore qK) => (P m).dn qK d c)
      = bigSep Finset.univ fun c : Fin ((K (F := F)).nCore qK) =>
          (fun c' : Fin 2 => bigSep (Finset.univ : Finset (Fin 16)) fun s => LaunchKB.tdQ m qK d c' s) (c.cast (LaunchKB.nCore_eq qK)) :=
    bigSep_congr fun c _ => bigSep_castSub (fun s => LaunchKB.tdQ m qK d (c.cast (LaunchKB.nCore_eq qK)) s)
  rw [h1, bigSep_castCore (fun c' : Fin 2 => bigSep (Finset.univ : Finset (Fin 16)) fun s => LaunchKB.tdQ m qK d c' s), ← bigSep_sep']
  refine bigSep_congr fun c _ => ?_
  rw [← bigSep_sep']
  refine bigSep_congr fun s _ => ?_
  rw [tdQ_eq]; rfl

omit [FloatOps F] in
theorem pair_sub : ({vx', vo'} : Finset (DevRef τ sig)) ⊆ tcRefs τ sig :=
  Finset.insert_subset (devRef_mem_tcRefs _) (Finset.singleton_subset_iff.mpr (devRef_mem_tcRefs _))

omit [FloatOps F] in
theorem held_pair (d : Dev nD) (V : Valuation τ sig (Elt F)) :
    (held (SparseCore.T d) ({vx', vo'} : Finset (DevRef τ sig)) V : sProp 𝕄) = iprop((ℓx d ↦{fullShare} V vx') ∗ (ℓo d ↦{fullShare} V vo')) := by
  unfold held; rw [SparseCore.bigSep_insert' (by decide), bigSep_singleton]

/-- What the call does to the TensorCore's buffers, as an operation on valuations: result q takes row q of the transpose. -/
abbrev opC (d : Dev nD) : HloOp τ sig (Elt F) := StableHlo.nullary main_v4 (Cert.Spec.row qK (xt m d))

/-- The call, from the TensorCore's buffers held at a valuation V whose transposed argument is the transpose: it
    leaves them at V but for result q, which holds row q of the transpose. -/
theorem step (κ : GSem nD τ sig → ℕ) (d : Dev nD) (V : Valuation τ sig (Elt F)) (hV : V vx' = xt m d) {Φ : PUnit → sProp 𝕄} :
    iprop((K (F := F)).ctx EH (P m) κ ∗ (K (F := F)).tcSt EH d qK.val ∗ held (SparseCore.T d) (tcRefs τ sig) V
        ∗ (((K (F := F)).tcSt EH d (qK.val + 1) ∗ held (SparseCore.T d) (tcRefs τ sig) ((opC m d).result V)) -∗ Φ ⟨⟩))
      ⊢ wp frame (wpE ((K (F := F)).defs (D (F := F))) 𝒱 (SparseCore.T d) none) Set.univ ((K (F := F)).run d qK) Φ := by
  rw [held_sub_split (SparseCore.T d) pair_sub V, held_pair, hV]
  iintro ⟨#Hctx, Hst, ⟨⟨Hx, Ho⟩, Hrest⟩, Hk⟩
  ihave Hx' := (pointsTo_split_subset (q := fullShare) (f := xt m d) (Finset.subset_univ (Pieces.rowSet qK.val : Finset (Idx (ℓx d))))).1 $$ Hx
  icases Hx' with ⟨Hrow, Hxrest⟩
  iapply ((K (F := F)).wp_run (D (F := F)) 𝒱 (EH := EH) (P := P m) κ d qK) $$ [Hst Hrow Ho Hk Hxrest Hrest]
  isplitr; · iexact Hctx
  isplitl [Hst]; · iexact Hst
  isplitl [Hrow Ho]
  · rw [st_eq]
    isplitl [Hrow]
    · iapply (Entails.of_eq (x_pieces d (xt m d))); iexact Hrow
    · iapply (o_pieces_ex d (V vo')); iexact Ho
  iintro ⟨Hst, Hdn⟩
  ihave Hdn' := (Entails.of_eq (dn_eq m d)) $$ Hdn
  icases Hdn' with ⟨Hrow, Ho⟩
  ihave Hrow' := (Entails.of_eq (x_pieces d (xt m d)).symm) $$ Hrow
  ihave Ho' := (Entails.of_eq (o_pieces_row d (xt m d))) $$ Ho
  ihave Hx := (pointsTo_split_subset (q := fullShare) (f := xt m d) (Finset.subset_univ (Pieces.rowSet qK.val : Finset (Idx (ℓx d))))).2 $$ [Hrow' Hxrest]
  · isplitl [Hrow']; · iexact Hrow'
    iexact Hxrest
  iapply Hk
  isplitl [Hst]; · iexact Hst
  rw [held_sub_split (SparseCore.T d) pair_sub ((opC m d).result V), held_pair,
    StableHlo.nullary_result_ne _ _ _ V (show (main_v0 : Ref sig .tc) ≠ main_v4 by decide), StableHlo.nullary_result, hV,
    held_congr (SparseCore.T d) (V := (opC m d).result V) (V' := V)
      (fun b hb => (opC m d).result_of_not_mem V (fun hw => (Finset.mem_sdiff.mp hb).2
        (Finset.mem_insert_of_mem (Finset.mem_singleton.mpr (Finset.mem_singleton.mp hw)))))]
  isplitl [Hx Ho']
  · isplitl [Hx]; · iexact Hx
    iexact Ho'
  · iexact Hrest

end Cert.Proof.CallB3

end
-- ==== Proof.CallPiecesB4.lean ====
/-
  The pieces of one call: row q of the transposed argument, held at some contents, is the 32 vector subcores' pieces of
  it; result q, held whole at some contents, is their pieces of it.
-/
import proofs.«206869_g37898791420194_cont_8to1_b_558_20_alg».proof.Proof.TileB4Defs
import proofs.«206869_g37898791420194_cont_8to1_b_558_20_alg».proof.Proof.LaunchPieces

noncomputable section

namespace Cert.Proof.CallB4

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic
open Cert.Proof.Pieces (crd)

variable {F : FTy → Type}

abbrev UU : Type := URounds (GSem nD τ sig) ℕ × Counters
local notation "𝕄" => MT nD τ sig (HIx 22) (Elt F) ℕ UU ℕ

/-- The call's number. -/
abbrev qK : Fin 22 := 4
theorem hq : qK.val < 22 := qK.isLt

abbrev vx' : DevRef τ sig := Proc.devRef .tc (main_v0 : Ref sig .tc)
abbrev vo' : DevRef τ sig := Proc.devRef .tc (main_v5 : Ref sig .tc)
abbrev ℓx (d : Dev nD) : Loc nD τ sig := (SparseCore.T d).loc main_v0
abbrev ℓo (d : Dev nD) : Loc nD τ sig := (SparseCore.T d).loc main_v5

variable [FloatOps F]

/-- Row q of the transposed argument, held at contents f, is the tasks' pieces of it. -/
theorem x_pieces (d : Dev nD) (f : Buf (Elt F) (ℓx d)) :
    (ℓx d ↦[(Pieces.rowSet qK.val : Finset (Idx (ℓx d)))]{fullShare} f : sProp 𝕄)
      = bigSep Finset.univ fun c : Fin 2 => bigSep Finset.univ fun s : Fin 16 => bigSep (Finset.range 18) (TileB4.xP d (crd c s) f) := by
  rw [← Pieces.in_cover qK.val hq, pointsTo_biUnion _ _ (Pieces.in_disj qK.val hq), Pieces.bigSep_tris]
  refine bigSep_congr fun c _ => bigSep_congr fun s _ => bigSep_congr fun n _ => ?_
  unfold TileB4.xP
  by_cases h : TileB4.valid (crd c s) n
  · rw [if_pos h, if_pos (show Pieces.pnum (c, s, n) < 500 from (TileB4.valid_iff _ _).mp h)]
    show _ = ((TileB4.inM (crd c s) n).view.loc (TileB4.thr d (crd c s)) ↦[(TileB4.inM (crd c s) n).view.set]{fullShare} f)
    rw [show (TileB4.inM (crd c s) n).view.set = Pieces.inSet qK.val hq (c, s, n) from View.set_slice_whole _ _]
  · rw [if_neg h, if_neg (show ¬ Pieces.pnum (c, s, n) < 500 from fun h' => h ((TileB4.valid_iff _ _).mpr h'))]
    rfl

/-- Result q, held whole at contents g, is the tasks' pieces of it at g. -/
theorem o_pieces (d : Dev nD) (g : Buf (Elt F) (ℓo d)) :
    (ℓo d ↦{fullShare} g : sProp 𝕄)
      = bigSep Finset.univ fun c : Fin 2 => bigSep Finset.univ fun s : Fin 16 => bigSep (Finset.range 18) fun n =>
          if TileB4.valid (crd c s) n then
            ((TileB4.outM (crd c s) n).view.loc (TileB4.thr d (crd c s)) ↦[(TileB4.outM (crd c s) n).view.set]{fullShare} g : sProp 𝕄)
          else iprop(emp) := by
  show (ℓo d ↦[(Finset.univ : Finset (Idx (ℓo d)))]{fullShare} g : sProp 𝕄) = _
  rw [← Pieces.out_cover, pointsTo_biUnion _ _ Pieces.out_disj, Pieces.bigSep_tris]
  refine bigSep_congr fun c _ => bigSep_congr fun s _ => bigSep_congr fun n _ => ?_
  by_cases h : TileB4.valid (crd c s) n
  · rw [if_pos h, if_pos (show Pieces.pnum (c, s, n) < 500 from (TileB4.valid_iff _ _).mp h)]
    rw [show (TileB4.outM (crd c s) n).view.set = Pieces.outSet (c, s, n) from View.set_slice_whole _ _]
  · rw [if_neg h, if_neg (show ¬ Pieces.pnum (c, s, n) < 500 from fun h' => h ((TileB4.valid_iff _ _).mpr h'))]
    rfl

end Cert.Proof.CallB4

end
-- ==== Proof.LaunchStepB4.lean ====
/-
  One call of a copy kernel, run from the TensorCore: from the TensorCore's buffers held at a valuation whose transposed
  argument is the transpose, the call leaves them at the same valuation but for result q, which holds row q.
-/
import proofs.«206869_g37898791420194_cont_8to1_b_558_20_alg».proof.Proof.LaunchPB
import proofs.«206869_g37898791420194_cont_8to1_b_558_20_alg».proof.Proof.CallPiecesB4

noncomputable section

namespace Cert.Proof.CallB4

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic
open Idealize.ShloMosaic.StableHlo (tcRefs devRef_mem_tcRefs held_sub_split held_congr)
open Cert.Proof.Pieces (crd)
open Cert.Proof.LaunchKB (K D 𝒱 𝒱₀ v₀ EH P xt)

variable {F : FTy → Type}

local notation "𝕄" => MT nD τ sig (HIx 22) (Elt F) ℕ UU ℕ

variable (m : (ℓ : Loc nD τ sig) → Buf (Elt F) ℓ)
variable [FloatOps F]

/-- Result q held whole at some contents gives every task its pieces of it, each at some contents. -/
theorem o_pieces_ex (d : Dev nD) (g : Buf (Elt F) (ℓo d)) :
    (ℓo d ↦{fullShare} g : sProp 𝕄)
      ⊢ bigSep Finset.univ fun c : Fin 2 => bigSep Finset.univ fun s : Fin 16 => bigSep (Finset.range 18) (TileB4.oP (F := F) d (crd c s)) := by
  rw [o_pieces d g]
  refine bigSep_mono fun c _ => bigSep_mono fun s _ => bigSep_mono fun n _ => ?_
  unfold TileB4.oP
  by_cases h : TileB4.valid (crd c s) n
  · rw [if_pos h, if_pos h]
    exact exists_intro (Φ := fun f => (((TileB4.outM (crd c s) n).view.loc (TileB4.thr d (crd c s)) ↦[(TileB4.outM (crd c s) n).view.set]{fullShare} f : sProp 𝕄))) g
  · rw [if_neg h, if_neg h]; exact BI.Entails.refl _

/-- The tasks' pieces of result q, each holding row q of f, are result q whole holding that row. -/
theorem o_pieces_row (d : Dev nD) (f : Buf (Elt F) (ℓx d)) :
    (bigSep Finset.univ fun c : Fin 2 => bigSep Finset.univ fun s : Fin 16 => bigSep (Finset.range 18) (TileB4.oQ d (crd c s) f))
      = (ℓo d ↦{fullShare} (Cert.Spec.row qK f : Buf (Elt F) (ℓo d)) : sProp 𝕄) := by
  rw [o_pieces d (Cert.Spec.row qK f : Buf (Elt F) (ℓo d))]
  rfl

omit [FloatOps F] in
/-- A separating conjunction over the call's grid of vector subcores, or of SparseCores, is one over sixteen, or two. -/
theorem bigSep_castSub (Φ : Fin 16 → sProp 𝕄) :
    (bigSep Finset.univ fun i : Fin ((K (F := F)).nSub qK) => Φ (i.cast (LaunchKB.nSub_eq qK))) = bigSep Finset.univ Φ :=
  bigSep_congr fun _ _ => congrArg Φ (Fin.ext rfl)
omit [FloatOps F] in
theorem bigSep_castCore (Φ : Fin 2 → sProp 𝕄) :
    (bigSep Finset.univ fun c : Fin ((K (F := F)).nCore qK) => Φ (c.cast (LaunchKB.nCore_eq qK))) = bigSep Finset.univ Φ :=
  bigSep_congr fun _ _ => congrArg Φ (Fin.ext rfl)

theorem goQ_eq (d : Dev nD) (c : Fin 2) (s : Fin 16) : LaunchKB.goQ m qK d c s = TileB4.goRes d (crd c s) (xt m d) := rfl
theorem tdQ_eq (d : Dev nD) (c : Fin 2) (s : Fin 16) : LaunchKB.tdQ m qK d c s = TileB4.tdRes d (crd c s) (xt m d) := rfl

/-- What the call takes for the two SparseCores: every task's pieces. -/
theorem st_eq (d : Dev nD) :
    (bigSep Finset.univ fun c : Fin ((K (F := F)).nCore qK) => (P m).st qK d c)
      = iprop((bigSep Finset.univ fun c : Fin 2 => bigSep Finset.univ fun s : Fin 16 => bigSep (Finset.range 18) (TileB4.xP d (crd c s) (xt m d)))
          ∗ (bigSep Finset.univ fun c : Fin 2 => bigSep Finset.univ fun s : Fin 16 => bigSep (Finset.range 18) (TileB4.oP (F := F) d (crd c s)))) := by
  have h1 : (bigSep Finset.univ fun c : Fin ((K (F := F)).nCore qK) => (P m).st qK d c)
      = bigSep Finset.univ fun c : Fin ((K (F := F)).nCore qK) =>
          (fun c' : Fin 2 => bigSep (Finset.univ : Finset (Fin 16)) fun s => LaunchKB.goQ m qK d c' s) (c.cast (LaunchKB.nCore_eq qK)) :=
    bigSep_congr fun c _ => bigSep_castSub (fun s => LaunchKB.goQ m qK d (c.cast (LaunchKB.nCore_eq qK)) s)
  rw [h1, bigSep_castCore (fun c' : Fin 2 => bigSep (Finset.univ : Finset (Fin 16)) fun s => LaunchKB.goQ m qK d c' s), ← bigSep_sep']
  refine bigSep_congr fun c _ => ?_
  rw [← bigSep_sep']
  refine bigSep_congr fun s _ => ?_
  rw [goQ_eq]; rfl

/-- What it hands back. -/
theorem dn_eq (d : Dev nD) :
    (bigSep Finset.univ fun c : Fin ((K (F := F)).nCore qK) => (P m).dn qK d c)
      = iprop((bigSep Finset.univ fun c : Fin 2 => bigSep Finset.univ fun s : Fin 16 => bigSep (Finset.range 18) (TileB4.xP d (crd c s) (xt m d)))
          ∗ (bigSep Finset.univ fun c : Fin 2 => bigSep Finset.univ fun s : Fin 16 => bigSep (Finset.range 18) (TileB4.oQ d (crd c s) (xt m d)))) := by
  have h1 : (bigSep Finset.univ fun c : Fin ((K (F := F)).nCore qK) => (P m).dn qK d c)
      = bigSep Finset.univ fun c : Fin ((K (F := F)).nCore qK) =>
          (fun c' : Fin 2 => bigSep (Finset.univ : Finset (Fin 16)) fun s => LaunchKB.tdQ m qK d c' s) (c.cast (LaunchKB.nCore_eq qK)) :=
    bigSep_congr fun c _ => bigSep_castSub (fun s => LaunchKB.tdQ m qK d (c.cast (LaunchKB.nCore_eq qK)) s)
  rw [h1, bigSep_castCore (fun c' : Fin 2 => bigSep (Finset.univ : Finset (Fin 16)) fun s => LaunchKB.tdQ m qK d c' s), ← bigSep_sep']
  refine bigSep_congr fun c _ => ?_
  rw [← bigSep_sep']
  refine bigSep_congr fun s _ => ?_
  rw [tdQ_eq]; rfl

omit [FloatOps F] in
theorem pair_sub : ({vx', vo'} : Finset (DevRef τ sig)) ⊆ tcRefs τ sig :=
  Finset.insert_subset (devRef_mem_tcRefs _) (Finset.singleton_subset_iff.mpr (devRef_mem_tcRefs _))

omit [FloatOps F] in
theorem held_pair (d : Dev nD) (V : Valuation τ sig (Elt F)) :
    (held (SparseCore.T d) ({vx', vo'} : Finset (DevRef τ sig)) V : sProp 𝕄) = iprop((ℓx d ↦{fullShare} V vx') ∗ (ℓo d ↦{fullShare} V vo')) := by
  unfold held; rw [SparseCore.bigSep_insert' (by decide), bigSep_singleton]

/-- What the call does to the TensorCore's buffers, as an operation on valuations: result q takes row q of the transpose. -/
abbrev opC (d : Dev nD) : HloOp τ sig (Elt F) := StableHlo.nullary main_v5 (Cert.Spec.row qK (xt m d))

/-- The call, from the TensorCore's buffers held at a valuation V whose transposed argument is the transpose: it
    leaves them at V but for result q, which holds row q of the transpose. -/
theorem step (κ : GSem nD τ sig → ℕ) (d : Dev nD) (V : Valuation τ sig (Elt F)) (hV : V vx' = xt m d) {Φ : PUnit → sProp 𝕄} :
    iprop((K (F := F)).ctx EH (P m) κ ∗ (K (F := F)).tcSt EH d qK.val ∗ held (SparseCore.T d) (tcRefs τ sig) V
        ∗ (((K (F := F)).tcSt EH d (qK.val + 1) ∗ held (SparseCore.T d) (tcRefs τ sig) ((opC m d).result V)) -∗ Φ ⟨⟩))
      ⊢ wp frame (wpE ((K (F := F)).defs (D (F := F))) 𝒱 (SparseCore.T d) none) Set.univ ((K (F := F)).run d qK) Φ := by
  rw [held_sub_split (SparseCore.T d) pair_sub V, held_pair, hV]
  iintro ⟨#Hctx, Hst, ⟨⟨Hx, Ho⟩, Hrest⟩, Hk⟩
  ihave Hx' := (pointsTo_split_subset (q := fullShare) (f := xt m d) (Finset.subset_univ (Pieces.rowSet qK.val : Finset (Idx (ℓx d))))).1 $$ Hx
  icases Hx' with ⟨Hrow, Hxrest⟩
  iapply ((K (F := F)).wp_run (D (F := F)) 𝒱 (EH := EH) (P := P m) κ d qK) $$ [Hst Hrow Ho Hk Hxrest Hrest]
  isplitr; · iexact Hctx
  isplitl [Hst]; · iexact Hst
  isplitl [Hrow Ho]
  · rw [st_eq]
    isplitl [Hrow]
    · iapply (Entails.of_eq (x_pieces d (xt m d))); iexact Hrow
    · iapply (o_pieces_ex d (V vo')); iexact Ho
  iintro ⟨Hst, Hdn⟩
  ihave Hdn' := (Entails.of_eq (dn_eq m d)) $$ Hdn
  icases Hdn' with ⟨Hrow, Ho⟩
  ihave Hrow' := (Entails.of_eq (x_pieces d (xt m d)).symm) $$ Hrow
  ihave Ho' := (Entails.of_eq (o_pieces_row d (xt m d))) $$ Ho
  ihave Hx := (pointsTo_split_subset (q := fullShare) (f := xt m d) (Finset.subset_univ (Pieces.rowSet qK.val : Finset (Idx (ℓx d))))).2 $$ [Hrow' Hxrest]
  · isplitl [Hrow']; · iexact Hrow'
    iexact Hxrest
  iapply Hk
  isplitl [Hst]; · iexact Hst
  rw [held_sub_split (SparseCore.T d) pair_sub ((opC m d).result V), held_pair,
    StableHlo.nullary_result_ne _ _ _ V (show (main_v0 : Ref sig .tc) ≠ main_v5 by decide), StableHlo.nullary_result, hV,
    held_congr (SparseCore.T d) (V := (opC m d).result V) (V' := V)
      (fun b hb => (opC m d).result_of_not_mem V (fun hw => (Finset.mem_sdiff.mp hb).2
        (Finset.mem_insert_of_mem (Finset.mem_singleton.mpr (Finset.mem_singleton.mp hw)))))]
  isplitl [Hx Ho']
  · isplitl [Hx]; · iexact Hx
    iexact Ho'
  · iexact Hrest

end Cert.Proof.CallB4

end
-- ==== Proof.CallPiecesB5.lean ====
/-
  The pieces of one call: row q of the transposed argument, held at some contents, is the 32 vector subcores' pieces of
  it; result q, held whole at some contents, is their pieces of it.
-/
import proofs.«206869_g37898791420194_cont_8to1_b_558_20_alg».proof.Proof.TileB5Defs
import proofs.«206869_g37898791420194_cont_8to1_b_558_20_alg».proof.Proof.LaunchPieces

noncomputable section

namespace Cert.Proof.CallB5

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic
open Cert.Proof.Pieces (crd)

variable {F : FTy → Type}

abbrev UU : Type := URounds (GSem nD τ sig) ℕ × Counters
local notation "𝕄" => MT nD τ sig (HIx 22) (Elt F) ℕ UU ℕ

/-- The call's number. -/
abbrev qK : Fin 22 := 5
theorem hq : qK.val < 22 := qK.isLt

abbrev vx' : DevRef τ sig := Proc.devRef .tc (main_v0 : Ref sig .tc)
abbrev vo' : DevRef τ sig := Proc.devRef .tc (main_v6 : Ref sig .tc)
abbrev ℓx (d : Dev nD) : Loc nD τ sig := (SparseCore.T d).loc main_v0
abbrev ℓo (d : Dev nD) : Loc nD τ sig := (SparseCore.T d).loc main_v6

variable [FloatOps F]

/-- Row q of the transposed argument, held at contents f, is the tasks' pieces of it. -/
theorem x_pieces (d : Dev nD) (f : Buf (Elt F) (ℓx d)) :
    (ℓx d ↦[(Pieces.rowSet qK.val : Finset (Idx (ℓx d)))]{fullShare} f : sProp 𝕄)
      = bigSep Finset.univ fun c : Fin 2 => bigSep Finset.univ fun s : Fin 16 => bigSep (Finset.range 18) (TileB5.xP d (crd c s) f) := by
  rw [← Pieces.in_cover qK.val hq, pointsTo_biUnion _ _ (Pieces.in_disj qK.val hq), Pieces.bigSep_tris]
  refine bigSep_congr fun c _ => bigSep_congr fun s _ => bigSep_congr fun n _ => ?_
  unfold TileB5.xP
  by_cases h : TileB5.valid (crd c s) n
  · rw [if_pos h, if_pos (show Pieces.pnum (c, s, n) < 500 from (TileB5.valid_iff _ _).mp h)]
    show _ = ((TileB5.inM (crd c s) n).view.loc (TileB5.thr d (crd c s)) ↦[(TileB5.inM (crd c s) n).view.set]{fullShare} f)
    rw [show (TileB5.inM (crd c s) n).view.set = Pieces.inSet qK.val hq (c, s, n) from View.set_slice_whole _ _]
  · rw [if_neg h, if_neg (show ¬ Pieces.pnum (c, s, n) < 500 from fun h' => h ((TileB5.valid_iff _ _).mpr h'))]
    rfl

/-- Result q, held whole at contents g, is the tasks' pieces of it at g. -/
theorem o_pieces (d : Dev nD) (g : Buf (Elt F) (ℓo d)) :
    (ℓo d ↦{fullShare} g : sProp 𝕄)
      = bigSep Finset.univ fun c : Fin 2 => bigSep Finset.univ fun s : Fin 16 => bigSep (Finset.range 18) fun n =>
          if TileB5.valid (crd c s) n then
            ((TileB5.outM (crd c s) n).view.loc (TileB5.thr d (crd c s)) ↦[(TileB5.outM (crd c s) n).view.set]{fullShare} g : sProp 𝕄)
          else iprop(emp) := by
  show (ℓo d ↦[(Finset.univ : Finset (Idx (ℓo d)))]{fullShare} g : sProp 𝕄) = _
  rw [← Pieces.out_cover, pointsTo_biUnion _ _ Pieces.out_disj, Pieces.bigSep_tris]
  refine bigSep_congr fun c _ => bigSep_congr fun s _ => bigSep_congr fun n _ => ?_
  by_cases h : TileB5.valid (crd c s) n
  · rw [if_pos h, if_pos (show Pieces.pnum (c, s, n) < 500 from (TileB5.valid_iff _ _).mp h)]
    rw [show (TileB5.outM (crd c s) n).view.set = Pieces.outSet (c, s, n) from View.set_slice_whole _ _]
  · rw [if_neg h, if_neg (show ¬ Pieces.pnum (c, s, n) < 500 from fun h' => h ((TileB5.valid_iff _ _).mpr h'))]
    rfl

end Cert.Proof.CallB5

end
-- ==== Proof.LaunchStepB5.lean ====
/-
  One call of a copy kernel, run from the TensorCore: from the TensorCore's buffers held at a valuation whose transposed
  argument is the transpose, the call leaves them at the same valuation but for result q, which holds row q.
-/
import proofs.«206869_g37898791420194_cont_8to1_b_558_20_alg».proof.Proof.LaunchPB
import proofs.«206869_g37898791420194_cont_8to1_b_558_20_alg».proof.Proof.CallPiecesB5

noncomputable section

namespace Cert.Proof.CallB5

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic
open Idealize.ShloMosaic.StableHlo (tcRefs devRef_mem_tcRefs held_sub_split held_congr)
open Cert.Proof.Pieces (crd)
open Cert.Proof.LaunchKB (K D 𝒱 𝒱₀ v₀ EH P xt)

variable {F : FTy → Type}

local notation "𝕄" => MT nD τ sig (HIx 22) (Elt F) ℕ UU ℕ

variable (m : (ℓ : Loc nD τ sig) → Buf (Elt F) ℓ)
variable [FloatOps F]

/-- Result q held whole at some contents gives every task its pieces of it, each at some contents. -/
theorem o_pieces_ex (d : Dev nD) (g : Buf (Elt F) (ℓo d)) :
    (ℓo d ↦{fullShare} g : sProp 𝕄)
      ⊢ bigSep Finset.univ fun c : Fin 2 => bigSep Finset.univ fun s : Fin 16 => bigSep (Finset.range 18) (TileB5.oP (F := F) d (crd c s)) := by
  rw [o_pieces d g]
  refine bigSep_mono fun c _ => bigSep_mono fun s _ => bigSep_mono fun n _ => ?_
  unfold TileB5.oP
  by_cases h : TileB5.valid (crd c s) n
  · rw [if_pos h, if_pos h]
    exact exists_intro (Φ := fun f => (((TileB5.outM (crd c s) n).view.loc (TileB5.thr d (crd c s)) ↦[(TileB5.outM (crd c s) n).view.set]{fullShare} f : sProp 𝕄))) g
  · rw [if_neg h, if_neg h]; exact BI.Entails.refl _

/-- The tasks' pieces of result q, each holding row q of f, are result q whole holding that row. -/
theorem o_pieces_row (d : Dev nD) (f : Buf (Elt F) (ℓx d)) :
    (bigSep Finset.univ fun c : Fin 2 => bigSep Finset.univ fun s : Fin 16 => bigSep (Finset.range 18) (TileB5.oQ d (crd c s) f))
      = (ℓo d ↦{fullShare} (Cert.Spec.row qK f : Buf (Elt F) (ℓo d)) : sProp 𝕄) := by
  rw [o_pieces d (Cert.Spec.row qK f : Buf (Elt F) (ℓo d))]
  rfl

omit [FloatOps F] in
/-- A separating conjunction over the call's grid of vector subcores, or of SparseCores, is one over sixteen, or two. -/
theorem bigSep_castSub (Φ : Fin 16 → sProp 𝕄) :
    (bigSep Finset.univ fun i : Fin ((K (F := F)).nSub qK) => Φ (i.cast (LaunchKB.nSub_eq qK))) = bigSep Finset.univ Φ :=
  bigSep_congr fun _ _ => congrArg Φ (Fin.ext rfl)
omit [FloatOps F] in
theorem bigSep_castCore (Φ : Fin 2 → sProp 𝕄) :
    (bigSep Finset.univ fun c : Fin ((K (F := F)).nCore qK) => Φ (c.cast (LaunchKB.nCore_eq qK))) = bigSep Finset.univ Φ :=
  bigSep_congr fun _ _ => congrArg Φ (Fin.ext rfl)

theorem goQ_eq (d : Dev nD) (c : Fin 2) (s : Fin 16) : LaunchKB.goQ m qK d c s = TileB5.goRes d (crd c s) (xt m d) := rfl
theorem tdQ_eq (d : Dev nD) (c : Fin 2) (s : Fin 16) : LaunchKB.tdQ m qK d c s = TileB5.tdRes d (crd c s) (xt m d) := rfl

/-- What the call takes for the two SparseCores: every task's pieces. -/
theorem st_eq (d : Dev nD) :
    (bigSep Finset.univ fun c : Fin ((K (F := F)).nCore qK) => (P m).st qK d c)
      = iprop((bigSep Finset.univ fun c : Fin 2 => bigSep Finset.univ fun s : Fin 16 => bigSep (Finset.range 18) (TileB5.xP d (crd c s) (xt m d)))
          ∗ (bigSep Finset.univ fun c : Fin 2 => bigSep Finset.univ fun s : Fin 16 => bigSep (Finset.range 18) (TileB5.oP (F := F) d (crd c s)))) := by
  have h1 : (bigSep Finset.univ fun c : Fin ((K (F := F)).nCore qK) => (P m).st qK d c)
      = bigSep Finset.univ fun c : Fin ((K (F := F)).nCore qK) =>
          (fun c' : Fin 2 => bigSep (Finset.univ : Finset (Fin 16)) fun s => LaunchKB.goQ m qK d c' s) (c.cast (LaunchKB.nCore_eq qK)) :=
    bigSep_congr fun c _ => bigSep_castSub (fun s => LaunchKB.goQ m qK d (c.cast (LaunchKB.nCore_eq qK)) s)
  rw [h1, bigSep_castCore (fun c' : Fin 2 => bigSep (Finset.univ : Finset (Fin 16)) fun s => LaunchKB.goQ m qK d c' s), ← bigSep_sep']
  refine bigSep_congr fun c _ => ?_
  rw [← bigSep_sep']
  refine bigSep_congr fun s _ => ?_
  rw [goQ_eq]; rfl

/-- What it hands back. -/
theorem dn_eq (d : Dev nD) :
    (bigSep Finset.univ fun c : Fin ((K (F := F)).nCore qK) => (P m).dn qK d c)
      = iprop((bigSep Finset.univ fun c : Fin 2 => bigSep Finset.univ fun s : Fin 16 => bigSep (Finset.range 18) (TileB5.xP d (crd c s) (xt m d)))
          ∗ (bigSep Finset.univ fun c : Fin 2 => bigSep Finset.univ fun s : Fin 16 => bigSep (Finset.range 18) (TileB5.oQ d (crd c s) (xt m d)))) := by
  have h1 : (bigSep Finset.univ fun c : Fin ((K (F := F)).nCore qK) => (P m).dn qK d c)
      = bigSep Finset.univ fun c : Fin ((K (F := F)).nCore qK) =>
          (fun c' : Fin 2 => bigSep (Finset.univ : Finset (Fin 16)) fun s => LaunchKB.tdQ m qK d c' s) (c.cast (LaunchKB.nCore_eq qK)) :=
    bigSep_congr fun c _ => bigSep_castSub (fun s => LaunchKB.tdQ m qK d (c.cast (LaunchKB.nCore_eq qK)) s)
  rw [h1, bigSep_castCore (fun c' : Fin 2 => bigSep (Finset.univ : Finset (Fin 16)) fun s => LaunchKB.tdQ m qK d c' s), ← bigSep_sep']
  refine bigSep_congr fun c _ => ?_
  rw [← bigSep_sep']
  refine bigSep_congr fun s _ => ?_
  rw [tdQ_eq]; rfl

omit [FloatOps F] in
theorem pair_sub : ({vx', vo'} : Finset (DevRef τ sig)) ⊆ tcRefs τ sig :=
  Finset.insert_subset (devRef_mem_tcRefs _) (Finset.singleton_subset_iff.mpr (devRef_mem_tcRefs _))

omit [FloatOps F] in
theorem held_pair (d : Dev nD) (V : Valuation τ sig (Elt F)) :
    (held (SparseCore.T d) ({vx', vo'} : Finset (DevRef τ sig)) V : sProp 𝕄) = iprop((ℓx d ↦{fullShare} V vx') ∗ (ℓo d ↦{fullShare} V vo')) := by
  unfold held; rw [SparseCore.bigSep_insert' (by decide), bigSep_singleton]

/-- What the call does to the TensorCore's buffers, as an operation on valuations: result q takes row q of the transpose. -/
abbrev opC (d : Dev nD) : HloOp τ sig (Elt F) := StableHlo.nullary main_v6 (Cert.Spec.row qK (xt m d))

/-- The call, from the TensorCore's buffers held at a valuation V whose transposed argument is the transpose: it
    leaves them at V but for result q, which holds row q of the transpose. -/
theorem step (κ : GSem nD τ sig → ℕ) (d : Dev nD) (V : Valuation τ sig (Elt F)) (hV : V vx' = xt m d) {Φ : PUnit → sProp 𝕄} :
    iprop((K (F := F)).ctx EH (P m) κ ∗ (K (F := F)).tcSt EH d qK.val ∗ held (SparseCore.T d) (tcRefs τ sig) V
        ∗ (((K (F := F)).tcSt EH d (qK.val + 1) ∗ held (SparseCore.T d) (tcRefs τ sig) ((opC m d).result V)) -∗ Φ ⟨⟩))
      ⊢ wp frame (wpE ((K (F := F)).defs (D (F := F))) 𝒱 (SparseCore.T d) none) Set.univ ((K (F := F)).run d qK) Φ := by
  rw [held_sub_split (SparseCore.T d) pair_sub V, held_pair, hV]
  iintro ⟨#Hctx, Hst, ⟨⟨Hx, Ho⟩, Hrest⟩, Hk⟩
  ihave Hx' := (pointsTo_split_subset (q := fullShare) (f := xt m d) (Finset.subset_univ (Pieces.rowSet qK.val : Finset (Idx (ℓx d))))).1 $$ Hx
  icases Hx' with ⟨Hrow, Hxrest⟩
  iapply ((K (F := F)).wp_run (D (F := F)) 𝒱 (EH := EH) (P := P m) κ d qK) $$ [Hst Hrow Ho Hk Hxrest Hrest]
  isplitr; · iexact Hctx
  isplitl [Hst]; · iexact Hst
  isplitl [Hrow Ho]
  · rw [st_eq]
    isplitl [Hrow]
    · iapply (Entails.of_eq (x_pieces d (xt m d))); iexact Hrow
    · iapply (o_pieces_ex d (V vo')); iexact Ho
  iintro ⟨Hst, Hdn⟩
  ihave Hdn' := (Entails.of_eq (dn_eq m d)) $$ Hdn
  icases Hdn' with ⟨Hrow, Ho⟩
  ihave Hrow' := (Entails.of_eq (x_pieces d (xt m d)).symm) $$ Hrow
  ihave Ho' := (Entails.of_eq (o_pieces_row d (xt m d))) $$ Ho
  ihave Hx := (pointsTo_split_subset (q := fullShare) (f := xt m d) (Finset.subset_univ (Pieces.rowSet qK.val : Finset (Idx (ℓx d))))).2 $$ [Hrow' Hxrest]
  · isplitl [Hrow']; · iexact Hrow'
    iexact Hxrest
  iapply Hk
  isplitl [Hst]; · iexact Hst
  rw [held_sub_split (SparseCore.T d) pair_sub ((opC m d).result V), held_pair,
    StableHlo.nullary_result_ne _ _ _ V (show (main_v0 : Ref sig .tc) ≠ main_v6 by decide), StableHlo.nullary_result, hV,
    held_congr (SparseCore.T d) (V := (opC m d).result V) (V' := V)
      (fun b hb => (opC m d).result_of_not_mem V (fun hw => (Finset.mem_sdiff.mp hb).2
        (Finset.mem_insert_of_mem (Finset.mem_singleton.mpr (Finset.mem_singleton.mp hw)))))]
  isplitl [Hx Ho']
  · isplitl [Hx]; · iexact Hx
    iexact Ho'
  · iexact Hrest

end Cert.Proof.CallB5

end
-- ==== Proof.CallPiecesB6.lean ====
/-
  The pieces of one call: row q of the transposed argument, held at some contents, is the 32 vector subcores' pieces of
  it; result q, held whole at some contents, is their pieces of it.
-/
import proofs.«206869_g37898791420194_cont_8to1_b_558_20_alg».proof.Proof.TileB6Defs
import proofs.«206869_g37898791420194_cont_8to1_b_558_20_alg».proof.Proof.LaunchPieces

noncomputable section

namespace Cert.Proof.CallB6

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic
open Cert.Proof.Pieces (crd)

variable {F : FTy → Type}

abbrev UU : Type := URounds (GSem nD τ sig) ℕ × Counters
local notation "𝕄" => MT nD τ sig (HIx 22) (Elt F) ℕ UU ℕ

/-- The call's number. -/
abbrev qK : Fin 22 := 6
theorem hq : qK.val < 22 := qK.isLt

abbrev vx' : DevRef τ sig := Proc.devRef .tc (main_v0 : Ref sig .tc)
abbrev vo' : DevRef τ sig := Proc.devRef .tc (main_v7 : Ref sig .tc)
abbrev ℓx (d : Dev nD) : Loc nD τ sig := (SparseCore.T d).loc main_v0
abbrev ℓo (d : Dev nD) : Loc nD τ sig := (SparseCore.T d).loc main_v7

variable [FloatOps F]

/-- Row q of the transposed argument, held at contents f, is the tasks' pieces of it. -/
theorem x_pieces (d : Dev nD) (f : Buf (Elt F) (ℓx d)) :
    (ℓx d ↦[(Pieces.rowSet qK.val : Finset (Idx (ℓx d)))]{fullShare} f : sProp 𝕄)
      = bigSep Finset.univ fun c : Fin 2 => bigSep Finset.univ fun s : Fin 16 => bigSep (Finset.range 18) (TileB6.xP d (crd c s) f) := by
  rw [← Pieces.in_cover qK.val hq, pointsTo_biUnion _ _ (Pieces.in_disj qK.val hq), Pieces.bigSep_tris]
  refine bigSep_congr fun c _ => bigSep_congr fun s _ => bigSep_congr fun n _ => ?_
  unfold TileB6.xP
  by_cases h : TileB6.valid (crd c s) n
  · rw [if_pos h, if_pos (show Pieces.pnum (c, s, n) < 500 from (TileB6.valid_iff _ _).mp h)]
    show _ = ((TileB6.inM (crd c s) n).view.loc (TileB6.thr d (crd c s)) ↦[(TileB6.inM (crd c s) n).view.set]{fullShare} f)
    rw [show (TileB6.inM (crd c s) n).view.set = Pieces.inSet qK.val hq (c, s, n) from View.set_slice_whole _ _]
  · rw [if_neg h, if_neg (show ¬ Pieces.pnum (c, s, n) < 500 from fun h' => h ((TileB6.valid_iff _ _).mpr h'))]
    rfl

/-- Result q, held whole at contents g, is the tasks' pieces of it at g. -/
theorem o_pieces (d : Dev nD) (g : Buf (Elt F) (ℓo d)) :
    (ℓo d ↦{fullShare} g : sProp 𝕄)
      = bigSep Finset.univ fun c : Fin 2 => bigSep Finset.univ fun s : Fin 16 => bigSep (Finset.range 18) fun n =>
          if TileB6.valid (crd c s) n then
            ((TileB6.outM (crd c s) n).view.loc (TileB6.thr d (crd c s)) ↦[(TileB6.outM (crd c s) n).view.set]{fullShare} g : sProp 𝕄)
          else iprop(emp) := by
  show (ℓo d ↦[(Finset.univ : Finset (Idx (ℓo d)))]{fullShare} g : sProp 𝕄) = _
  rw [← Pieces.out_cover, pointsTo_biUnion _ _ Pieces.out_disj, Pieces.bigSep_tris]
  refine bigSep_congr fun c _ => bigSep_congr fun s _ => bigSep_congr fun n _ => ?_
  by_cases h : TileB6.valid (crd c s) n
  · rw [if_pos h, if_pos (show Pieces.pnum (c, s, n) < 500 from (TileB6.valid_iff _ _).mp h)]
    rw [show (TileB6.outM (crd c s) n).view.set = Pieces.outSet (c, s, n) from View.set_slice_whole _ _]
  · rw [if_neg h, if_neg (show ¬ Pieces.pnum (c, s, n) < 500 from fun h' => h ((TileB6.valid_iff _ _).mpr h'))]
    rfl

end Cert.Proof.CallB6

end
-- ==== Proof.LaunchStepB6.lean ====
/-
  One call of a copy kernel, run from the TensorCore: from the TensorCore's buffers held at a valuation whose transposed
  argument is the transpose, the call leaves them at the same valuation but for result q, which holds row q.
-/
import proofs.«206869_g37898791420194_cont_8to1_b_558_20_alg».proof.Proof.LaunchPB
import proofs.«206869_g37898791420194_cont_8to1_b_558_20_alg».proof.Proof.CallPiecesB6

noncomputable section

namespace Cert.Proof.CallB6

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic
open Idealize.ShloMosaic.StableHlo (tcRefs devRef_mem_tcRefs held_sub_split held_congr)
open Cert.Proof.Pieces (crd)
open Cert.Proof.LaunchKB (K D 𝒱 𝒱₀ v₀ EH P xt)

variable {F : FTy → Type}

local notation "𝕄" => MT nD τ sig (HIx 22) (Elt F) ℕ UU ℕ

variable (m : (ℓ : Loc nD τ sig) → Buf (Elt F) ℓ)
variable [FloatOps F]

/-- Result q held whole at some contents gives every task its pieces of it, each at some contents. -/
theorem o_pieces_ex (d : Dev nD) (g : Buf (Elt F) (ℓo d)) :
    (ℓo d ↦{fullShare} g : sProp 𝕄)
      ⊢ bigSep Finset.univ fun c : Fin 2 => bigSep Finset.univ fun s : Fin 16 => bigSep (Finset.range 18) (TileB6.oP (F := F) d (crd c s)) := by
  rw [o_pieces d g]
  refine bigSep_mono fun c _ => bigSep_mono fun s _ => bigSep_mono fun n _ => ?_
  unfold TileB6.oP
  by_cases h : TileB6.valid (crd c s) n
  · rw [if_pos h, if_pos h]
    exact exists_intro (Φ := fun f => (((TileB6.outM (crd c s) n).view.loc (TileB6.thr d (crd c s)) ↦[(TileB6.outM (crd c s) n).view.set]{fullShare} f : sProp 𝕄))) g
  · rw [if_neg h, if_neg h]; exact BI.Entails.refl _

/-- The tasks' pieces of result q, each holding row q of f, are result q whole holding that row. -/
theorem o_pieces_row (d : Dev nD) (f : Buf (Elt F) (ℓx d)) :
    (bigSep Finset.univ fun c : Fin 2 => bigSep Finset.univ fun s : Fin 16 => bigSep (Finset.range 18) (TileB6.oQ d (crd c s) f))
      = (ℓo d ↦{fullShare} (Cert.Spec.row qK f : Buf (Elt F) (ℓo d)) : sProp 𝕄) := by
  rw [o_pieces d (Cert.Spec.row qK f : Buf (Elt F) (ℓo d))]
  rfl

omit [FloatOps F] in
/-- A separating conjunction over the call's grid of vector subcores, or of SparseCores, is one over sixteen, or two. -/
theorem bigSep_castSub (Φ : Fin 16 → sProp 𝕄) :
    (bigSep Finset.univ fun i : Fin ((K (F := F)).nSub qK) => Φ (i.cast (LaunchKB.nSub_eq qK))) = bigSep Finset.univ Φ :=
  bigSep_congr fun _ _ => congrArg Φ (Fin.ext rfl)
omit [FloatOps F] in
theorem bigSep_castCore (Φ : Fin 2 → sProp 𝕄) :
    (bigSep Finset.univ fun c : Fin ((K (F := F)).nCore qK) => Φ (c.cast (LaunchKB.nCore_eq qK))) = bigSep Finset.univ Φ :=
  bigSep_congr fun _ _ => congrArg Φ (Fin.ext rfl)

theorem goQ_eq (d : Dev nD) (c : Fin 2) (s : Fin 16) : LaunchKB.goQ m qK d c s = TileB6.goRes d (crd c s) (xt m d) := rfl
theorem tdQ_eq (d : Dev nD) (c : Fin 2) (s : Fin 16) : LaunchKB.tdQ m qK d c s = TileB6.tdRes d (crd c s) (xt m d) := rfl

/-- What the call takes for the two SparseCores: every task's pieces. -/
theorem st_eq (d : Dev nD) :
    (bigSep Finset.univ fun c : Fin ((K (F := F)).nCore qK) => (P m).st qK d c)
      = iprop((bigSep Finset.univ fun c : Fin 2 => bigSep Finset.univ fun s : Fin 16 => bigSep (Finset.range 18) (TileB6.xP d (crd c s) (xt m d)))
          ∗ (bigSep Finset.univ fun c : Fin 2 => bigSep Finset.univ fun s : Fin 16 => bigSep (Finset.range 18) (TileB6.oP (F := F) d (crd c s)))) := by
  have h1 : (bigSep Finset.univ fun c : Fin ((K (F := F)).nCore qK) => (P m).st qK d c)
      = bigSep Finset.univ fun c : Fin ((K (F := F)).nCore qK) =>
          (fun c' : Fin 2 => bigSep (Finset.univ : Finset (Fin 16)) fun s => LaunchKB.goQ m qK d c' s) (c.cast (LaunchKB.nCore_eq qK)) :=
    bigSep_congr fun c _ => bigSep_castSub (fun s => LaunchKB.goQ m qK d (c.cast (LaunchKB.nCore_eq qK)) s)
  rw [h1, bigSep_castCore (fun c' : Fin 2 => bigSep (Finset.univ : Finset (Fin 16)) fun s => LaunchKB.goQ m qK d c' s), ← bigSep_sep']
  refine bigSep_congr fun c _ => ?_
  rw [← bigSep_sep']
  refine bigSep_congr fun s _ => ?_
  rw [goQ_eq]; rfl

/-- What it hands back. -/
theorem dn_eq (d : Dev nD) :
    (bigSep Finset.univ fun c : Fin ((K (F := F)).nCore qK) => (P m).dn qK d c)
      = iprop((bigSep Finset.univ fun c : Fin 2 => bigSep Finset.univ fun s : Fin 16 => bigSep (Finset.range 18) (TileB6.xP d (crd c s) (xt m d)))
          ∗ (bigSep Finset.univ fun c : Fin 2 => bigSep Finset.univ fun s : Fin 16 => bigSep (Finset.range 18) (TileB6.oQ d (crd c s) (xt m d)))) := by
  have h1 : (bigSep Finset.univ fun c : Fin ((K (F := F)).nCore qK) => (P m).dn qK d c)
      = bigSep Finset.univ fun c : Fin ((K (F := F)).nCore qK) =>
          (fun c' : Fin 2 => bigSep (Finset.univ : Finset (Fin 16)) fun s => LaunchKB.tdQ m qK d c' s) (c.cast (LaunchKB.nCore_eq qK)) :=
    bigSep_congr fun c _ => bigSep_castSub (fun s => LaunchKB.tdQ m qK d (c.cast (LaunchKB.nCore_eq qK)) s)
  rw [h1, bigSep_castCore (fun c' : Fin 2 => bigSep (Finset.univ : Finset (Fin 16)) fun s => LaunchKB.tdQ m qK d c' s), ← bigSep_sep']
  refine bigSep_congr fun c _ => ?_
  rw [← bigSep_sep']
  refine bigSep_congr fun s _ => ?_
  rw [tdQ_eq]; rfl

omit [FloatOps F] in
theorem pair_sub : ({vx', vo'} : Finset (DevRef τ sig)) ⊆ tcRefs τ sig :=
  Finset.insert_subset (devRef_mem_tcRefs _) (Finset.singleton_subset_iff.mpr (devRef_mem_tcRefs _))

omit [FloatOps F] in
theorem held_pair (d : Dev nD) (V : Valuation τ sig (Elt F)) :
    (held (SparseCore.T d) ({vx', vo'} : Finset (DevRef τ sig)) V : sProp 𝕄) = iprop((ℓx d ↦{fullShare} V vx') ∗ (ℓo d ↦{fullShare} V vo')) := by
  unfold held; rw [SparseCore.bigSep_insert' (by decide), bigSep_singleton]

/-- What the call does to the TensorCore's buffers, as an operation on valuations: result q takes row q of the transpose. -/
abbrev opC (d : Dev nD) : HloOp τ sig (Elt F) := StableHlo.nullary main_v7 (Cert.Spec.row qK (xt m d))

/-- The call, from the TensorCore's buffers held at a valuation V whose transposed argument is the transpose: it
    leaves them at V but for result q, which holds row q of the transpose. -/
theorem step (κ : GSem nD τ sig → ℕ) (d : Dev nD) (V : Valuation τ sig (Elt F)) (hV : V vx' = xt m d) {Φ : PUnit → sProp 𝕄} :
    iprop((K (F := F)).ctx EH (P m) κ ∗ (K (F := F)).tcSt EH d qK.val ∗ held (SparseCore.T d) (tcRefs τ sig) V
        ∗ (((K (F := F)).tcSt EH d (qK.val + 1) ∗ held (SparseCore.T d) (tcRefs τ sig) ((opC m d).result V)) -∗ Φ ⟨⟩))
      ⊢ wp frame (wpE ((K (F := F)).defs (D (F := F))) 𝒱 (SparseCore.T d) none) Set.univ ((K (F := F)).run d qK) Φ := by
  rw [held_sub_split (SparseCore.T d) pair_sub V, held_pair, hV]
  iintro ⟨#Hctx, Hst, ⟨⟨Hx, Ho⟩, Hrest⟩, Hk⟩
  ihave Hx' := (pointsTo_split_subset (q := fullShare) (f := xt m d) (Finset.subset_univ (Pieces.rowSet qK.val : Finset (Idx (ℓx d))))).1 $$ Hx
  icases Hx' with ⟨Hrow, Hxrest⟩
  iapply ((K (F := F)).wp_run (D (F := F)) 𝒱 (EH := EH) (P := P m) κ d qK) $$ [Hst Hrow Ho Hk Hxrest Hrest]
  isplitr; · iexact Hctx
  isplitl [Hst]; · iexact Hst
  isplitl [Hrow Ho]
  · rw [st_eq]
    isplitl [Hrow]
    · iapply (Entails.of_eq (x_pieces d (xt m d))); iexact Hrow
    · iapply (o_pieces_ex d (V vo')); iexact Ho
  iintro ⟨Hst, Hdn⟩
  ihave Hdn' := (Entails.of_eq (dn_eq m d)) $$ Hdn
  icases Hdn' with ⟨Hrow, Ho⟩
  ihave Hrow' := (Entails.of_eq (x_pieces d (xt m d)).symm) $$ Hrow
  ihave Ho' := (Entails.of_eq (o_pieces_row d (xt m d))) $$ Ho
  ihave Hx := (pointsTo_split_subset (q := fullShare) (f := xt m d) (Finset.subset_univ (Pieces.rowSet qK.val : Finset (Idx (ℓx d))))).2 $$ [Hrow' Hxrest]
  · isplitl [Hrow']; · iexact Hrow'
    iexact Hxrest
  iapply Hk
  isplitl [Hst]; · iexact Hst
  rw [held_sub_split (SparseCore.T d) pair_sub ((opC m d).result V), held_pair,
    StableHlo.nullary_result_ne _ _ _ V (show (main_v0 : Ref sig .tc) ≠ main_v7 by decide), StableHlo.nullary_result, hV,
    held_congr (SparseCore.T d) (V := (opC m d).result V) (V' := V)
      (fun b hb => (opC m d).result_of_not_mem V (fun hw => (Finset.mem_sdiff.mp hb).2
        (Finset.mem_insert_of_mem (Finset.mem_singleton.mpr (Finset.mem_singleton.mp hw)))))]
  isplitl [Hx Ho']
  · isplitl [Hx]; · iexact Hx
    iexact Ho'
  · iexact Hrest

end Cert.Proof.CallB6

end
-- ==== Proof.CallPiecesB7.lean ====
/-
  The pieces of one call: row q of the transposed argument, held at some contents, is the 32 vector subcores' pieces of
  it; result q, held whole at some contents, is their pieces of it.
-/
import proofs.«206869_g37898791420194_cont_8to1_b_558_20_alg».proof.Proof.TileB7Defs
import proofs.«206869_g37898791420194_cont_8to1_b_558_20_alg».proof.Proof.LaunchPieces

noncomputable section

namespace Cert.Proof.CallB7

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic
open Cert.Proof.Pieces (crd)

variable {F : FTy → Type}

abbrev UU : Type := URounds (GSem nD τ sig) ℕ × Counters
local notation "𝕄" => MT nD τ sig (HIx 22) (Elt F) ℕ UU ℕ

/-- The call's number. -/
abbrev qK : Fin 22 := 7
theorem hq : qK.val < 22 := qK.isLt

abbrev vx' : DevRef τ sig := Proc.devRef .tc (main_v0 : Ref sig .tc)
abbrev vo' : DevRef τ sig := Proc.devRef .tc (main_v8 : Ref sig .tc)
abbrev ℓx (d : Dev nD) : Loc nD τ sig := (SparseCore.T d).loc main_v0
abbrev ℓo (d : Dev nD) : Loc nD τ sig := (SparseCore.T d).loc main_v8

variable [FloatOps F]

/-- Row q of the transposed argument, held at contents f, is the tasks' pieces of it. -/
theorem x_pieces (d : Dev nD) (f : Buf (Elt F) (ℓx d)) :
    (ℓx d ↦[(Pieces.rowSet qK.val : Finset (Idx (ℓx d)))]{fullShare} f : sProp 𝕄)
      = bigSep Finset.univ fun c : Fin 2 => bigSep Finset.univ fun s : Fin 16 => bigSep (Finset.range 18) (TileB7.xP d (crd c s) f) := by
  rw [← Pieces.in_cover qK.val hq, pointsTo_biUnion _ _ (Pieces.in_disj qK.val hq), Pieces.bigSep_tris]
  refine bigSep_congr fun c _ => bigSep_congr fun s _ => bigSep_congr fun n _ => ?_
  unfold TileB7.xP
  by_cases h : TileB7.valid (crd c s) n
  · rw [if_pos h, if_pos (show Pieces.pnum (c, s, n) < 500 from (TileB7.valid_iff _ _).mp h)]
    show _ = ((TileB7.inM (crd c s) n).view.loc (TileB7.thr d (crd c s)) ↦[(TileB7.inM (crd c s) n).view.set]{fullShare} f)
    rw [show (TileB7.inM (crd c s) n).view.set = Pieces.inSet qK.val hq (c, s, n) from View.set_slice_whole _ _]
  · rw [if_neg h, if_neg (show ¬ Pieces.pnum (c, s, n) < 500 from fun h' => h ((TileB7.valid_iff _ _).mpr h'))]
    rfl

/-- Result q, held whole at contents g, is the tasks' pieces of it at g. -/
theorem o_pieces (d : Dev nD) (g : Buf (Elt F) (ℓo d)) :
    (ℓo d ↦{fullShare} g : sProp 𝕄)
      = bigSep Finset.univ fun c : Fin 2 => bigSep Finset.univ fun s : Fin 16 => bigSep (Finset.range 18) fun n =>
          if TileB7.valid (crd c s) n then
            ((TileB7.outM (crd c s) n).view.loc (TileB7.thr d (crd c s)) ↦[(TileB7.outM (crd c s) n).view.set]{fullShare} g : sProp 𝕄)
          else iprop(emp) := by
  show (ℓo d ↦[(Finset.univ : Finset (Idx (ℓo d)))]{fullShare} g : sProp 𝕄) = _
  rw [← Pieces.out_cover, pointsTo_biUnion _ _ Pieces.out_disj, Pieces.bigSep_tris]
  refine bigSep_congr fun c _ => bigSep_congr fun s _ => bigSep_congr fun n _ => ?_
  by_cases h : TileB7.valid (crd c s) n
  · rw [if_pos h, if_pos (show Pieces.pnum (c, s, n) < 500 from (TileB7.valid_iff _ _).mp h)]
    rw [show (TileB7.outM (crd c s) n).view.set = Pieces.outSet (c, s, n) from View.set_slice_whole _ _]
  · rw [if_neg h, if_neg (show ¬ Pieces.pnum (c, s, n) < 500 from fun h' => h ((TileB7.valid_iff _ _).mpr h'))]
    rfl

end Cert.Proof.CallB7

end
-- ==== Proof.LaunchStepB7.lean ====
/-
  One call of a copy kernel, run from the TensorCore: from the TensorCore's buffers held at a valuation whose transposed
  argument is the transpose, the call leaves them at the same valuation but for result q, which holds row q.
-/
import proofs.«206869_g37898791420194_cont_8to1_b_558_20_alg».proof.Proof.LaunchPB
import proofs.«206869_g37898791420194_cont_8to1_b_558_20_alg».proof.Proof.CallPiecesB7

noncomputable section

namespace Cert.Proof.CallB7

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic
open Idealize.ShloMosaic.StableHlo (tcRefs devRef_mem_tcRefs held_sub_split held_congr)
open Cert.Proof.Pieces (crd)
open Cert.Proof.LaunchKB (K D 𝒱 𝒱₀ v₀ EH P xt)

variable {F : FTy → Type}

local notation "𝕄" => MT nD τ sig (HIx 22) (Elt F) ℕ UU ℕ

variable (m : (ℓ : Loc nD τ sig) → Buf (Elt F) ℓ)
variable [FloatOps F]

/-- Result q held whole at some contents gives every task its pieces of it, each at some contents. -/
theorem o_pieces_ex (d : Dev nD) (g : Buf (Elt F) (ℓo d)) :
    (ℓo d ↦{fullShare} g : sProp 𝕄)
      ⊢ bigSep Finset.univ fun c : Fin 2 => bigSep Finset.univ fun s : Fin 16 => bigSep (Finset.range 18) (TileB7.oP (F := F) d (crd c s)) := by
  rw [o_pieces d g]
  refine bigSep_mono fun c _ => bigSep_mono fun s _ => bigSep_mono fun n _ => ?_
  unfold TileB7.oP
  by_cases h : TileB7.valid (crd c s) n
  · rw [if_pos h, if_pos h]
    exact exists_intro (Φ := fun f => (((TileB7.outM (crd c s) n).view.loc (TileB7.thr d (crd c s)) ↦[(TileB7.outM (crd c s) n).view.set]{fullShare} f : sProp 𝕄))) g
  · rw [if_neg h, if_neg h]; exact BI.Entails.refl _

/-- The tasks' pieces of result q, each holding row q of f, are result q whole holding that row. -/
theorem o_pieces_row (d : Dev nD) (f : Buf (Elt F) (ℓx d)) :
    (bigSep Finset.univ fun c : Fin 2 => bigSep Finset.univ fun s : Fin 16 => bigSep (Finset.range 18) (TileB7.oQ d (crd c s) f))
      = (ℓo d ↦{fullShare} (Cert.Spec.row qK f : Buf (Elt F) (ℓo d)) : sProp 𝕄) := by
  rw [o_pieces d (Cert.Spec.row qK f : Buf (Elt F) (ℓo d))]
  rfl

omit [FloatOps F] in
/-- A separating conjunction over the call's grid of vector subcores, or of SparseCores, is one over sixteen, or two. -/
theorem bigSep_castSub (Φ : Fin 16 → sProp 𝕄) :
    (bigSep Finset.univ fun i : Fin ((K (F := F)).nSub qK) => Φ (i.cast (LaunchKB.nSub_eq qK))) = bigSep Finset.univ Φ :=
  bigSep_congr fun _ _ => congrArg Φ (Fin.ext rfl)
omit [FloatOps F] in
theorem bigSep_castCore (Φ : Fin 2 → sProp 𝕄) :
    (bigSep Finset.univ fun c : Fin ((K (F := F)).nCore qK) => Φ (c.cast (LaunchKB.nCore_eq qK))) = bigSep Finset.univ Φ :=
  bigSep_congr fun _ _ => congrArg Φ (Fin.ext rfl)

theorem goQ_eq (d : Dev nD) (c : Fin 2) (s : Fin 16) : LaunchKB.goQ m qK d c s = TileB7.goRes d (crd c s) (xt m d) := rfl
theorem tdQ_eq (d : Dev nD) (c : Fin 2) (s : Fin 16) : LaunchKB.tdQ m qK d c s = TileB7.tdRes d (crd c s) (xt m d) := rfl

/-- What the call takes for the two SparseCores: every task's pieces. -/
theorem st_eq (d : Dev nD) :
    (bigSep Finset.univ fun c : Fin ((K (F := F)).nCore qK) => (P m).st qK d c)
      = iprop((bigSep Finset.univ fun c : Fin 2 => bigSep Finset.univ fun s : Fin 16 => bigSep (Finset.range 18) (TileB7.xP d (crd c s) (xt m d)))
          ∗ (bigSep Finset.univ fun c : Fin 2 => bigSep Finset.univ fun s : Fin 16 => bigSep (Finset.range 18) (TileB7.oP (F := F) d (crd c s)))) := by
  have h1 : (bigSep Finset.univ fun c : Fin ((K (F := F)).nCore qK) => (P m).st qK d c)
      = bigSep Finset.univ fun c : Fin ((K (F := F)).nCore qK) =>
          (fun c' : Fin 2 => bigSep (Finset.univ : Finset (Fin 16)) fun s => LaunchKB.goQ m qK d c' s) (c.cast (LaunchKB.nCore_eq qK)) :=
    bigSep_congr fun c _ => bigSep_castSub (fun s => LaunchKB.goQ m qK d (c.cast (LaunchKB.nCore_eq qK)) s)
  rw [h1, bigSep_castCore (fun c' : Fin 2 => bigSep (Finset.univ : Finset (Fin 16)) fun s => LaunchKB.goQ m qK d c' s), ← bigSep_sep']
  refine bigSep_congr fun c _ => ?_
  rw [← bigSep_sep']
  refine bigSep_congr fun s _ => ?_
  rw [goQ_eq]; rfl

/-- What it hands back. -/
theorem dn_eq (d : Dev nD) :
    (bigSep Finset.univ fun c : Fin ((K (F := F)).nCore qK) => (P m).dn qK d c)
      = iprop((bigSep Finset.univ fun c : Fin 2 => bigSep Finset.univ fun s : Fin 16 => bigSep (Finset.range 18) (TileB7.xP d (crd c s) (xt m d)))
          ∗ (bigSep Finset.univ fun c : Fin 2 => bigSep Finset.univ fun s : Fin 16 => bigSep (Finset.range 18) (TileB7.oQ d (crd c s) (xt m d)))) := by
  have h1 : (bigSep Finset.univ fun c : Fin ((K (F := F)).nCore qK) => (P m).dn qK d c)
      = bigSep Finset.univ fun c : Fin ((K (F := F)).nCore qK) =>
          (fun c' : Fin 2 => bigSep (Finset.univ : Finset (Fin 16)) fun s => LaunchKB.tdQ m qK d c' s) (c.cast (LaunchKB.nCore_eq qK)) :=
    bigSep_congr fun c _ => bigSep_castSub (fun s => LaunchKB.tdQ m qK d (c.cast (LaunchKB.nCore_eq qK)) s)
  rw [h1, bigSep_castCore (fun c' : Fin 2 => bigSep (Finset.univ : Finset (Fin 16)) fun s => LaunchKB.tdQ m qK d c' s), ← bigSep_sep']
  refine bigSep_congr fun c _ => ?_
  rw [← bigSep_sep']
  refine bigSep_congr fun s _ => ?_
  rw [tdQ_eq]; rfl

omit [FloatOps F] in
theorem pair_sub : ({vx', vo'} : Finset (DevRef τ sig)) ⊆ tcRefs τ sig :=
  Finset.insert_subset (devRef_mem_tcRefs _) (Finset.singleton_subset_iff.mpr (devRef_mem_tcRefs _))

omit [FloatOps F] in
theorem held_pair (d : Dev nD) (V : Valuation τ sig (Elt F)) :
    (held (SparseCore.T d) ({vx', vo'} : Finset (DevRef τ sig)) V : sProp 𝕄) = iprop((ℓx d ↦{fullShare} V vx') ∗ (ℓo d ↦{fullShare} V vo')) := by
  unfold held; rw [SparseCore.bigSep_insert' (by decide), bigSep_singleton]

/-- What the call does to the TensorCore's buffers, as an operation on valuations: result q takes row q of the transpose. -/
abbrev opC (d : Dev nD) : HloOp τ sig (Elt F) := StableHlo.nullary main_v8 (Cert.Spec.row qK (xt m d))

/-- The call, from the TensorCore's buffers held at a valuation V whose transposed argument is the transpose: it
    leaves them at V but for result q, which holds row q of the transpose. -/
theorem step (κ : GSem nD τ sig → ℕ) (d : Dev nD) (V : Valuation τ sig (Elt F)) (hV : V vx' = xt m d) {Φ : PUnit → sProp 𝕄} :
    iprop((K (F := F)).ctx EH (P m) κ ∗ (K (F := F)).tcSt EH d qK.val ∗ held (SparseCore.T d) (tcRefs τ sig) V
        ∗ (((K (F := F)).tcSt EH d (qK.val + 1) ∗ held (SparseCore.T d) (tcRefs τ sig) ((opC m d).result V)) -∗ Φ ⟨⟩))
      ⊢ wp frame (wpE ((K (F := F)).defs (D (F := F))) 𝒱 (SparseCore.T d) none) Set.univ ((K (F := F)).run d qK) Φ := by
  rw [held_sub_split (SparseCore.T d) pair_sub V, held_pair, hV]
  iintro ⟨#Hctx, Hst, ⟨⟨Hx, Ho⟩, Hrest⟩, Hk⟩
  ihave Hx' := (pointsTo_split_subset (q := fullShare) (f := xt m d) (Finset.subset_univ (Pieces.rowSet qK.val : Finset (Idx (ℓx d))))).1 $$ Hx
  icases Hx' with ⟨Hrow, Hxrest⟩
  iapply ((K (F := F)).wp_run (D (F := F)) 𝒱 (EH := EH) (P := P m) κ d qK) $$ [Hst Hrow Ho Hk Hxrest Hrest]
  isplitr; · iexact Hctx
  isplitl [Hst]; · iexact Hst
  isplitl [Hrow Ho]
  · rw [st_eq]
    isplitl [Hrow]
    · iapply (Entails.of_eq (x_pieces d (xt m d))); iexact Hrow
    · iapply (o_pieces_ex d (V vo')); iexact Ho
  iintro ⟨Hst, Hdn⟩
  ihave Hdn' := (Entails.of_eq (dn_eq m d)) $$ Hdn
  icases Hdn' with ⟨Hrow, Ho⟩
  ihave Hrow' := (Entails.of_eq (x_pieces d (xt m d)).symm) $$ Hrow
  ihave Ho' := (Entails.of_eq (o_pieces_row d (xt m d))) $$ Ho
  ihave Hx := (pointsTo_split_subset (q := fullShare) (f := xt m d) (Finset.subset_univ (Pieces.rowSet qK.val : Finset (Idx (ℓx d))))).2 $$ [Hrow' Hxrest]
  · isplitl [Hrow']; · iexact Hrow'
    iexact Hxrest
  iapply Hk
  isplitl [Hst]; · iexact Hst
  rw [held_sub_split (SparseCore.T d) pair_sub ((opC m d).result V), held_pair,
    StableHlo.nullary_result_ne _ _ _ V (show (main_v0 : Ref sig .tc) ≠ main_v8 by decide), StableHlo.nullary_result, hV,
    held_congr (SparseCore.T d) (V := (opC m d).result V) (V' := V)
      (fun b hb => (opC m d).result_of_not_mem V (fun hw => (Finset.mem_sdiff.mp hb).2
        (Finset.mem_insert_of_mem (Finset.mem_singleton.mpr (Finset.mem_singleton.mp hw)))))]
  isplitl [Hx Ho']
  · isplitl [Hx]; · iexact Hx
    iexact Ho'
  · iexact Hrest

end Cert.Proof.CallB7

end
-- ==== Proof.CallPiecesB8.lean ====
/-
  The pieces of one call: row q of the transposed argument, held at some contents, is the 32 vector subcores' pieces of
  it; result q, held whole at some contents, is their pieces of it.
-/
import proofs.«206869_g37898791420194_cont_8to1_b_558_20_alg».proof.Proof.TileB8Defs
import proofs.«206869_g37898791420194_cont_8to1_b_558_20_alg».proof.Proof.LaunchPieces

noncomputable section

namespace Cert.Proof.CallB8

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic
open Cert.Proof.Pieces (crd)

variable {F : FTy → Type}

abbrev UU : Type := URounds (GSem nD τ sig) ℕ × Counters
local notation "𝕄" => MT nD τ sig (HIx 22) (Elt F) ℕ UU ℕ

/-- The call's number. -/
abbrev qK : Fin 22 := 8
theorem hq : qK.val < 22 := qK.isLt

abbrev vx' : DevRef τ sig := Proc.devRef .tc (main_v0 : Ref sig .tc)
abbrev vo' : DevRef τ sig := Proc.devRef .tc (main_v9 : Ref sig .tc)
abbrev ℓx (d : Dev nD) : Loc nD τ sig := (SparseCore.T d).loc main_v0
abbrev ℓo (d : Dev nD) : Loc nD τ sig := (SparseCore.T d).loc main_v9

variable [FloatOps F]

/-- Row q of the transposed argument, held at contents f, is the tasks' pieces of it. -/
theorem x_pieces (d : Dev nD) (f : Buf (Elt F) (ℓx d)) :
    (ℓx d ↦[(Pieces.rowSet qK.val : Finset (Idx (ℓx d)))]{fullShare} f : sProp 𝕄)
      = bigSep Finset.univ fun c : Fin 2 => bigSep Finset.univ fun s : Fin 16 => bigSep (Finset.range 18) (TileB8.xP d (crd c s) f) := by
  rw [← Pieces.in_cover qK.val hq, pointsTo_biUnion _ _ (Pieces.in_disj qK.val hq), Pieces.bigSep_tris]
  refine bigSep_congr fun c _ => bigSep_congr fun s _ => bigSep_congr fun n _ => ?_
  unfold TileB8.xP
  by_cases h : TileB8.valid (crd c s) n
  · rw [if_pos h, if_pos (show Pieces.pnum (c, s, n) < 500 from (TileB8.valid_iff _ _).mp h)]
    show _ = ((TileB8.inM (crd c s) n).view.loc (TileB8.thr d (crd c s)) ↦[(TileB8.inM (crd c s) n).view.set]{fullShare} f)
    rw [show (TileB8.inM (crd c s) n).view.set = Pieces.inSet qK.val hq (c, s, n) from View.set_slice_whole _ _]
  · rw [if_neg h, if_neg (show ¬ Pieces.pnum (c, s, n) < 500 from fun h' => h ((TileB8.valid_iff _ _).mpr h'))]
    rfl

/-- Result q, held whole at contents g, is the tasks' pieces of it at g. -/
theorem o_pieces (d : Dev nD) (g : Buf (Elt F) (ℓo d)) :
    (ℓo d ↦{fullShare} g : sProp 𝕄)
      = bigSep Finset.univ fun c : Fin 2 => bigSep Finset.univ fun s : Fin 16 => bigSep (Finset.range 18) fun n =>
          if TileB8.valid (crd c s) n then
            ((TileB8.outM (crd c s) n).view.loc (TileB8.thr d (crd c s)) ↦[(TileB8.outM (crd c s) n).view.set]{fullShare} g : sProp 𝕄)
          else iprop(emp) := by
  show (ℓo d ↦[(Finset.univ : Finset (Idx (ℓo d)))]{fullShare} g : sProp 𝕄) = _
  rw [← Pieces.out_cover, pointsTo_biUnion _ _ Pieces.out_disj, Pieces.bigSep_tris]
  refine bigSep_congr fun c _ => bigSep_congr fun s _ => bigSep_congr fun n _ => ?_
  by_cases h : TileB8.valid (crd c s) n
  · rw [if_pos h, if_pos (show Pieces.pnum (c, s, n) < 500 from (TileB8.valid_iff _ _).mp h)]
    rw [show (TileB8.outM (crd c s) n).view.set = Pieces.outSet (c, s, n) from View.set_slice_whole _ _]
  · rw [if_neg h, if_neg (show ¬ Pieces.pnum (c, s, n) < 500 from fun h' => h ((TileB8.valid_iff _ _).mpr h'))]
    rfl

end Cert.Proof.CallB8

end
-- ==== Proof.LaunchStepB8.lean ====
/-
  One call of a copy kernel, run from the TensorCore: from the TensorCore's buffers held at a valuation whose transposed
  argument is the transpose, the call leaves them at the same valuation but for result q, which holds row q.
-/
import proofs.«206869_g37898791420194_cont_8to1_b_558_20_alg».proof.Proof.LaunchPB
import proofs.«206869_g37898791420194_cont_8to1_b_558_20_alg».proof.Proof.CallPiecesB8

noncomputable section

namespace Cert.Proof.CallB8

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic
open Idealize.ShloMosaic.StableHlo (tcRefs devRef_mem_tcRefs held_sub_split held_congr)
open Cert.Proof.Pieces (crd)
open Cert.Proof.LaunchKB (K D 𝒱 𝒱₀ v₀ EH P xt)

variable {F : FTy → Type}

local notation "𝕄" => MT nD τ sig (HIx 22) (Elt F) ℕ UU ℕ

variable (m : (ℓ : Loc nD τ sig) → Buf (Elt F) ℓ)
variable [FloatOps F]

/-- Result q held whole at some contents gives every task its pieces of it, each at some contents. -/
theorem o_pieces_ex (d : Dev nD) (g : Buf (Elt F) (ℓo d)) :
    (ℓo d ↦{fullShare} g : sProp 𝕄)
      ⊢ bigSep Finset.univ fun c : Fin 2 => bigSep Finset.univ fun s : Fin 16 => bigSep (Finset.range 18) (TileB8.oP (F := F) d (crd c s)) := by
  rw [o_pieces d g]
  refine bigSep_mono fun c _ => bigSep_mono fun s _ => bigSep_mono fun n _ => ?_
  unfold TileB8.oP
  by_cases h : TileB8.valid (crd c s) n
  · rw [if_pos h, if_pos h]
    exact exists_intro (Φ := fun f => (((TileB8.outM (crd c s) n).view.loc (TileB8.thr d (crd c s)) ↦[(TileB8.outM (crd c s) n).view.set]{fullShare} f : sProp 𝕄))) g
  · rw [if_neg h, if_neg h]; exact BI.Entails.refl _

/-- The tasks' pieces of result q, each holding row q of f, are result q whole holding that row. -/
theorem o_pieces_row (d : Dev nD) (f : Buf (Elt F) (ℓx d)) :
    (bigSep Finset.univ fun c : Fin 2 => bigSep Finset.univ fun s : Fin 16 => bigSep (Finset.range 18) (TileB8.oQ d (crd c s) f))
      = (ℓo d ↦{fullShare} (Cert.Spec.row qK f : Buf (Elt F) (ℓo d)) : sProp 𝕄) := by
  rw [o_pieces d (Cert.Spec.row qK f : Buf (Elt F) (ℓo d))]
  rfl

omit [FloatOps F] in
/-- A separating conjunction over the call's grid of vector subcores, or of SparseCores, is one over sixteen, or two. -/
theorem bigSep_castSub (Φ : Fin 16 → sProp 𝕄) :
    (bigSep Finset.univ fun i : Fin ((K (F := F)).nSub qK) => Φ (i.cast (LaunchKB.nSub_eq qK))) = bigSep Finset.univ Φ :=
  bigSep_congr fun _ _ => congrArg Φ (Fin.ext rfl)
omit [FloatOps F] in
theorem bigSep_castCore (Φ : Fin 2 → sProp 𝕄) :
    (bigSep Finset.univ fun c : Fin ((K (F := F)).nCore qK) => Φ (c.cast (LaunchKB.nCore_eq qK))) = bigSep Finset.univ Φ :=
  bigSep_congr fun _ _ => congrArg Φ (Fin.ext rfl)

theorem goQ_eq (d : Dev nD) (c : Fin 2) (s : Fin 16) : LaunchKB.goQ m qK d c s = TileB8.goRes d (crd c s) (xt m d) := rfl
theorem tdQ_eq (d : Dev nD) (c : Fin 2) (s : Fin 16) : LaunchKB.tdQ m qK d c s = TileB8.tdRes d (crd c s) (xt m d) := rfl

/-- What the call takes for the two SparseCores: every task's pieces. -/
theorem st_eq (d : Dev nD) :
    (bigSep Finset.univ fun c : Fin ((K (F := F)).nCore qK) => (P m).st qK d c)
      = iprop((bigSep Finset.univ fun c : Fin 2 => bigSep Finset.univ fun s : Fin 16 => bigSep (Finset.range 18) (TileB8.xP d (crd c s) (xt m d)))
          ∗ (bigSep Finset.univ fun c : Fin 2 => bigSep Finset.univ fun s : Fin 16 => bigSep (Finset.range 18) (TileB8.oP (F := F) d (crd c s)))) := by
  have h1 : (bigSep Finset.univ fun c : Fin ((K (F := F)).nCore qK) => (P m).st qK d c)
      = bigSep Finset.univ fun c : Fin ((K (F := F)).nCore qK) =>
          (fun c' : Fin 2 => bigSep (Finset.univ : Finset (Fin 16)) fun s => LaunchKB.goQ m qK d c' s) (c.cast (LaunchKB.nCore_eq qK)) :=
    bigSep_congr fun c _ => bigSep_castSub (fun s => LaunchKB.goQ m qK d (c.cast (LaunchKB.nCore_eq qK)) s)
  rw [h1, bigSep_castCore (fun c' : Fin 2 => bigSep (Finset.univ : Finset (Fin 16)) fun s => LaunchKB.goQ m qK d c' s), ← bigSep_sep']
  refine bigSep_congr fun c _ => ?_
  rw [← bigSep_sep']
  refine bigSep_congr fun s _ => ?_
  rw [goQ_eq]; rfl

/-- What it hands back. -/
theorem dn_eq (d : Dev nD) :
    (bigSep Finset.univ fun c : Fin ((K (F := F)).nCore qK) => (P m).dn qK d c)
      = iprop((bigSep Finset.univ fun c : Fin 2 => bigSep Finset.univ fun s : Fin 16 => bigSep (Finset.range 18) (TileB8.xP d (crd c s) (xt m d)))
          ∗ (bigSep Finset.univ fun c : Fin 2 => bigSep Finset.univ fun s : Fin 16 => bigSep (Finset.range 18) (TileB8.oQ d (crd c s) (xt m d)))) := by
  have h1 : (bigSep Finset.univ fun c : Fin ((K (F := F)).nCore qK) => (P m).dn qK d c)
      = bigSep Finset.univ fun c : Fin ((K (F := F)).nCore qK) =>
          (fun c' : Fin 2 => bigSep (Finset.univ : Finset (Fin 16)) fun s => LaunchKB.tdQ m qK d c' s) (c.cast (LaunchKB.nCore_eq qK)) :=
    bigSep_congr fun c _ => bigSep_castSub (fun s => LaunchKB.tdQ m qK d (c.cast (LaunchKB.nCore_eq qK)) s)
  rw [h1, bigSep_castCore (fun c' : Fin 2 => bigSep (Finset.univ : Finset (Fin 16)) fun s => LaunchKB.tdQ m qK d c' s), ← bigSep_sep']
  refine bigSep_congr fun c _ => ?_
  rw [← bigSep_sep']
  refine bigSep_congr fun s _ => ?_
  rw [tdQ_eq]; rfl

omit [FloatOps F] in
theorem pair_sub : ({vx', vo'} : Finset (DevRef τ sig)) ⊆ tcRefs τ sig :=
  Finset.insert_subset (devRef_mem_tcRefs _) (Finset.singleton_subset_iff.mpr (devRef_mem_tcRefs _))

omit [FloatOps F] in
theorem held_pair (d : Dev nD) (V : Valuation τ sig (Elt F)) :
    (held (SparseCore.T d) ({vx', vo'} : Finset (DevRef τ sig)) V : sProp 𝕄) = iprop((ℓx d ↦{fullShare} V vx') ∗ (ℓo d ↦{fullShare} V vo')) := by
  unfold held; rw [SparseCore.bigSep_insert' (by decide), bigSep_singleton]

/-- What the call does to the TensorCore's buffers, as an operation on valuations: result q takes row q of the transpose. -/
abbrev opC (d : Dev nD) : HloOp τ sig (Elt F) := StableHlo.nullary main_v9 (Cert.Spec.row qK (xt m d))

/-- The call, from the TensorCore's buffers held at a valuation V whose transposed argument is the transpose: it
    leaves them at V but for result q, which holds row q of the transpose. -/
theorem step (κ : GSem nD τ sig → ℕ) (d : Dev nD) (V : Valuation τ sig (Elt F)) (hV : V vx' = xt m d) {Φ : PUnit → sProp 𝕄} :
    iprop((K (F := F)).ctx EH (P m) κ ∗ (K (F := F)).tcSt EH d qK.val ∗ held (SparseCore.T d) (tcRefs τ sig) V
        ∗ (((K (F := F)).tcSt EH d (qK.val + 1) ∗ held (SparseCore.T d) (tcRefs τ sig) ((opC m d).result V)) -∗ Φ ⟨⟩))
      ⊢ wp frame (wpE ((K (F := F)).defs (D (F := F))) 𝒱 (SparseCore.T d) none) Set.univ ((K (F := F)).run d qK) Φ := by
  rw [held_sub_split (SparseCore.T d) pair_sub V, held_pair, hV]
  iintro ⟨#Hctx, Hst, ⟨⟨Hx, Ho⟩, Hrest⟩, Hk⟩
  ihave Hx' := (pointsTo_split_subset (q := fullShare) (f := xt m d) (Finset.subset_univ (Pieces.rowSet qK.val : Finset (Idx (ℓx d))))).1 $$ Hx
  icases Hx' with ⟨Hrow, Hxrest⟩
  iapply ((K (F := F)).wp_run (D (F := F)) 𝒱 (EH := EH) (P := P m) κ d qK) $$ [Hst Hrow Ho Hk Hxrest Hrest]
  isplitr; · iexact Hctx
  isplitl [Hst]; · iexact Hst
  isplitl [Hrow Ho]
  · rw [st_eq]
    isplitl [Hrow]
    · iapply (Entails.of_eq (x_pieces d (xt m d))); iexact Hrow
    · iapply (o_pieces_ex d (V vo')); iexact Ho
  iintro ⟨Hst, Hdn⟩
  ihave Hdn' := (Entails.of_eq (dn_eq m d)) $$ Hdn
  icases Hdn' with ⟨Hrow, Ho⟩
  ihave Hrow' := (Entails.of_eq (x_pieces d (xt m d)).symm) $$ Hrow
  ihave Ho' := (Entails.of_eq (o_pieces_row d (xt m d))) $$ Ho
  ihave Hx := (pointsTo_split_subset (q := fullShare) (f := xt m d) (Finset.subset_univ (Pieces.rowSet qK.val : Finset (Idx (ℓx d))))).2 $$ [Hrow' Hxrest]
  · isplitl [Hrow']; · iexact Hrow'
    iexact Hxrest
  iapply Hk
  isplitl [Hst]; · iexact Hst
  rw [held_sub_split (SparseCore.T d) pair_sub ((opC m d).result V), held_pair,
    StableHlo.nullary_result_ne _ _ _ V (show (main_v0 : Ref sig .tc) ≠ main_v9 by decide), StableHlo.nullary_result, hV,
    held_congr (SparseCore.T d) (V := (opC m d).result V) (V' := V)
      (fun b hb => (opC m d).result_of_not_mem V (fun hw => (Finset.mem_sdiff.mp hb).2
        (Finset.mem_insert_of_mem (Finset.mem_singleton.mpr (Finset.mem_singleton.mp hw)))))]
  isplitl [Hx Ho']
  · isplitl [Hx]; · iexact Hx
    iexact Ho'
  · iexact Hrest

end Cert.Proof.CallB8

end
-- ==== Proof.CallPiecesB9.lean ====
/-
  The pieces of one call: row q of the transposed argument, held at some contents, is the 32 vector subcores' pieces of
  it; result q, held whole at some contents, is their pieces of it.
-/
import proofs.«206869_g37898791420194_cont_8to1_b_558_20_alg».proof.Proof.TileB9Defs
import proofs.«206869_g37898791420194_cont_8to1_b_558_20_alg».proof.Proof.LaunchPieces

noncomputable section

namespace Cert.Proof.CallB9

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic
open Cert.Proof.Pieces (crd)

variable {F : FTy → Type}

abbrev UU : Type := URounds (GSem nD τ sig) ℕ × Counters
local notation "𝕄" => MT nD τ sig (HIx 22) (Elt F) ℕ UU ℕ

/-- The call's number. -/
abbrev qK : Fin 22 := 9
theorem hq : qK.val < 22 := qK.isLt

abbrev vx' : DevRef τ sig := Proc.devRef .tc (main_v0 : Ref sig .tc)
abbrev vo' : DevRef τ sig := Proc.devRef .tc (main_v10 : Ref sig .tc)
abbrev ℓx (d : Dev nD) : Loc nD τ sig := (SparseCore.T d).loc main_v0
abbrev ℓo (d : Dev nD) : Loc nD τ sig := (SparseCore.T d).loc main_v10

variable [FloatOps F]

/-- Row q of the transposed argument, held at contents f, is the tasks' pieces of it. -/
theorem x_pieces (d : Dev nD) (f : Buf (Elt F) (ℓx d)) :
    (ℓx d ↦[(Pieces.rowSet qK.val : Finset (Idx (ℓx d)))]{fullShare} f : sProp 𝕄)
      = bigSep Finset.univ fun c : Fin 2 => bigSep Finset.univ fun s : Fin 16 => bigSep (Finset.range 18) (TileB9.xP d (crd c s) f) := by
  rw [← Pieces.in_cover qK.val hq, pointsTo_biUnion _ _ (Pieces.in_disj qK.val hq), Pieces.bigSep_tris]
  refine bigSep_congr fun c _ => bigSep_congr fun s _ => bigSep_congr fun n _ => ?_
  unfold TileB9.xP
  by_cases h : TileB9.valid (crd c s) n
  · rw [if_pos h, if_pos (show Pieces.pnum (c, s, n) < 500 from (TileB9.valid_iff _ _).mp h)]
    show _ = ((TileB9.inM (crd c s) n).view.loc (TileB9.thr d (crd c s)) ↦[(TileB9.inM (crd c s) n).view.set]{fullShare} f)
    rw [show (TileB9.inM (crd c s) n).view.set = Pieces.inSet qK.val hq (c, s, n) from View.set_slice_whole _ _]
  · rw [if_neg h, if_neg (show ¬ Pieces.pnum (c, s, n) < 500 from fun h' => h ((TileB9.valid_iff _ _).mpr h'))]
    rfl

/-- Result q, held whole at contents g, is the tasks' pieces of it at g. -/
theorem o_pieces (d : Dev nD) (g : Buf (Elt F) (ℓo d)) :
    (ℓo d ↦{fullShare} g : sProp 𝕄)
      = bigSep Finset.univ fun c : Fin 2 => bigSep Finset.univ fun s : Fin 16 => bigSep (Finset.range 18) fun n =>
          if TileB9.valid (crd c s) n then
            ((TileB9.outM (crd c s) n).view.loc (TileB9.thr d (crd c s)) ↦[(TileB9.outM (crd c s) n).view.set]{fullShare} g : sProp 𝕄)
          else iprop(emp) := by
  show (ℓo d ↦[(Finset.univ : Finset (Idx (ℓo d)))]{fullShare} g : sProp 𝕄) = _
  rw [← Pieces.out_cover, pointsTo_biUnion _ _ Pieces.out_disj, Pieces.bigSep_tris]
  refine bigSep_congr fun c _ => bigSep_congr fun s _ => bigSep_congr fun n _ => ?_
  by_cases h : TileB9.valid (crd c s) n
  · rw [if_pos h, if_pos (show Pieces.pnum (c, s, n) < 500 from (TileB9.valid_iff _ _).mp h)]
    rw [show (TileB9.outM (crd c s) n).view.set = Pieces.outSet (c, s, n) from View.set_slice_whole _ _]
  · rw [if_neg h, if_neg (show ¬ Pieces.pnum (c, s, n) < 500 from fun h' => h ((TileB9.valid_iff _ _).mpr h'))]
    rfl

end Cert.Proof.CallB9

end
-- ==== Proof.LaunchStepB9.lean ====
/-
  One call of a copy kernel, run from the TensorCore: from the TensorCore's buffers held at a valuation whose transposed
  argument is the transpose, the call leaves them at the same valuation but for result q, which holds row q.
-/
import proofs.«206869_g37898791420194_cont_8to1_b_558_20_alg».proof.Proof.LaunchPB
import proofs.«206869_g37898791420194_cont_8to1_b_558_20_alg».proof.Proof.CallPiecesB9

noncomputable section

namespace Cert.Proof.CallB9

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic
open Idealize.ShloMosaic.StableHlo (tcRefs devRef_mem_tcRefs held_sub_split held_congr)
open Cert.Proof.Pieces (crd)
open Cert.Proof.LaunchKB (K D 𝒱 𝒱₀ v₀ EH P xt)

variable {F : FTy → Type}

local notation "𝕄" => MT nD τ sig (HIx 22) (Elt F) ℕ UU ℕ

variable (m : (ℓ : Loc nD τ sig) → Buf (Elt F) ℓ)
variable [FloatOps F]

/-- Result q held whole at some contents gives every task its pieces of it, each at some contents. -/
theorem o_pieces_ex (d : Dev nD) (g : Buf (Elt F) (ℓo d)) :
    (ℓo d ↦{fullShare} g : sProp 𝕄)
      ⊢ bigSep Finset.univ fun c : Fin 2 => bigSep Finset.univ fun s : Fin 16 => bigSep (Finset.range 18) (TileB9.oP (F := F) d (crd c s)) := by
  rw [o_pieces d g]
  refine bigSep_mono fun c _ => bigSep_mono fun s _ => bigSep_mono fun n _ => ?_
  unfold TileB9.oP
  by_cases h : TileB9.valid (crd c s) n
  · rw [if_pos h, if_pos h]
    exact exists_intro (Φ := fun f => (((TileB9.outM (crd c s) n).view.loc (TileB9.thr d (crd c s)) ↦[(TileB9.outM (crd c s) n).view.set]{fullShare} f : sProp 𝕄))) g
  · rw [if_neg h, if_neg h]; exact BI.Entails.refl _

/-- The tasks' pieces of result q, each holding row q of f, are result q whole holding that row. -/
theorem o_pieces_row (d : Dev nD) (f : Buf (Elt F) (ℓx d)) :
    (bigSep Finset.univ fun c : Fin 2 => bigSep Finset.univ fun s : Fin 16 => bigSep (Finset.range 18) (TileB9.oQ d (crd c s) f))
      = (ℓo d ↦{fullShare} (Cert.Spec.row qK f : Buf (Elt F) (ℓo d)) : sProp 𝕄) := by
  rw [o_pieces d (Cert.Spec.row qK f : Buf (Elt F) (ℓo d))]
  rfl

omit [FloatOps F] in
/-- A separating conjunction over the call's grid of vector subcores, or of SparseCores, is one over sixteen, or two. -/
theorem bigSep_castSub (Φ : Fin 16 → sProp 𝕄) :
    (bigSep Finset.univ fun i : Fin ((K (F := F)).nSub qK) => Φ (i.cast (LaunchKB.nSub_eq qK))) = bigSep Finset.univ Φ :=
  bigSep_congr fun _ _ => congrArg Φ (Fin.ext rfl)
omit [FloatOps F] in
theorem bigSep_castCore (Φ : Fin 2 → sProp 𝕄) :
    (bigSep Finset.univ fun c : Fin ((K (F := F)).nCore qK) => Φ (c.cast (LaunchKB.nCore_eq qK))) = bigSep Finset.univ Φ :=
  bigSep_congr fun _ _ => congrArg Φ (Fin.ext rfl)

theorem goQ_eq (d : Dev nD) (c : Fin 2) (s : Fin 16) : LaunchKB.goQ m qK d c s = TileB9.goRes d (crd c s) (xt m d) := rfl
theorem tdQ_eq (d : Dev nD) (c : Fin 2) (s : Fin 16) : LaunchKB.tdQ m qK d c s = TileB9.tdRes d (crd c s) (xt m d) := rfl

/-- What the call takes for the two SparseCores: every task's pieces. -/
theorem st_eq (d : Dev nD) :
    (bigSep Finset.univ fun c : Fin ((K (F := F)).nCore qK) => (P m).st qK d c)
      = iprop((bigSep Finset.univ fun c : Fin 2 => bigSep Finset.univ fun s : Fin 16 => bigSep (Finset.range 18) (TileB9.xP d (crd c s) (xt m d)))
          ∗ (bigSep Finset.univ fun c : Fin 2 => bigSep Finset.univ fun s : Fin 16 => bigSep (Finset.range 18) (TileB9.oP (F := F) d (crd c s)))) := by
  have h1 : (bigSep Finset.univ fun c : Fin ((K (F := F)).nCore qK) => (P m).st qK d c)
      = bigSep Finset.univ fun c : Fin ((K (F := F)).nCore qK) =>
          (fun c' : Fin 2 => bigSep (Finset.univ : Finset (Fin 16)) fun s => LaunchKB.goQ m qK d c' s) (c.cast (LaunchKB.nCore_eq qK)) :=
    bigSep_congr fun c _ => bigSep_castSub (fun s => LaunchKB.goQ m qK d (c.cast (LaunchKB.nCore_eq qK)) s)
  rw [h1, bigSep_castCore (fun c' : Fin 2 => bigSep (Finset.univ : Finset (Fin 16)) fun s => LaunchKB.goQ m qK d c' s), ← bigSep_sep']
  refine bigSep_congr fun c _ => ?_
  rw [← bigSep_sep']
  refine bigSep_congr fun s _ => ?_
  rw [goQ_eq]; rfl

/-- What it hands back. -/
theorem dn_eq (d : Dev nD) :
    (bigSep Finset.univ fun c : Fin ((K (F := F)).nCore qK) => (P m).dn qK d c)
      = iprop((bigSep Finset.univ fun c : Fin 2 => bigSep Finset.univ fun s : Fin 16 => bigSep (Finset.range 18) (TileB9.xP d (crd c s) (xt m d)))
          ∗ (bigSep Finset.univ fun c : Fin 2 => bigSep Finset.univ fun s : Fin 16 => bigSep (Finset.range 18) (TileB9.oQ d (crd c s) (xt m d)))) := by
  have h1 : (bigSep Finset.univ fun c : Fin ((K (F := F)).nCore qK) => (P m).dn qK d c)
      = bigSep Finset.univ fun c : Fin ((K (F := F)).nCore qK) =>
          (fun c' : Fin 2 => bigSep (Finset.univ : Finset (Fin 16)) fun s => LaunchKB.tdQ m qK d c' s) (c.cast (LaunchKB.nCore_eq qK)) :=
    bigSep_congr fun c _ => bigSep_castSub (fun s => LaunchKB.tdQ m qK d (c.cast (LaunchKB.nCore_eq qK)) s)
  rw [h1, bigSep_castCore (fun c' : Fin 2 => bigSep (Finset.univ : Finset (Fin 16)) fun s => LaunchKB.tdQ m qK d c' s), ← bigSep_sep']
  refine bigSep_congr fun c _ => ?_
  rw [← bigSep_sep']
  refine bigSep_congr fun s _ => ?_
  rw [tdQ_eq]; rfl

omit [FloatOps F] in
theorem pair_sub : ({vx', vo'} : Finset (DevRef τ sig)) ⊆ tcRefs τ sig :=
  Finset.insert_subset (devRef_mem_tcRefs _) (Finset.singleton_subset_iff.mpr (devRef_mem_tcRefs _))

omit [FloatOps F] in
theorem held_pair (d : Dev nD) (V : Valuation τ sig (Elt F)) :
    (held (SparseCore.T d) ({vx', vo'} : Finset (DevRef τ sig)) V : sProp 𝕄) = iprop((ℓx d ↦{fullShare} V vx') ∗ (ℓo d ↦{fullShare} V vo')) := by
  unfold held; rw [SparseCore.bigSep_insert' (by decide), bigSep_singleton]

/-- What the call does to the TensorCore's buffers, as an operation on valuations: result q takes row q of the transpose. -/
abbrev opC (d : Dev nD) : HloOp τ sig (Elt F) := StableHlo.nullary main_v10 (Cert.Spec.row qK (xt m d))

/-- The call, from the TensorCore's buffers held at a valuation V whose transposed argument is the transpose: it
    leaves them at V but for result q, which holds row q of the transpose. -/
theorem step (κ : GSem nD τ sig → ℕ) (d : Dev nD) (V : Valuation τ sig (Elt F)) (hV : V vx' = xt m d) {Φ : PUnit → sProp 𝕄} :
    iprop((K (F := F)).ctx EH (P m) κ ∗ (K (F := F)).tcSt EH d qK.val ∗ held (SparseCore.T d) (tcRefs τ sig) V
        ∗ (((K (F := F)).tcSt EH d (qK.val + 1) ∗ held (SparseCore.T d) (tcRefs τ sig) ((opC m d).result V)) -∗ Φ ⟨⟩))
      ⊢ wp frame (wpE ((K (F := F)).defs (D (F := F))) 𝒱 (SparseCore.T d) none) Set.univ ((K (F := F)).run d qK) Φ := by
  rw [held_sub_split (SparseCore.T d) pair_sub V, held_pair, hV]
  iintro ⟨#Hctx, Hst, ⟨⟨Hx, Ho⟩, Hrest⟩, Hk⟩
  ihave Hx' := (pointsTo_split_subset (q := fullShare) (f := xt m d) (Finset.subset_univ (Pieces.rowSet qK.val : Finset (Idx (ℓx d))))).1 $$ Hx
  icases Hx' with ⟨Hrow, Hxrest⟩
  iapply ((K (F := F)).wp_run (D (F := F)) 𝒱 (EH := EH) (P := P m) κ d qK) $$ [Hst Hrow Ho Hk Hxrest Hrest]
  isplitr; · iexact Hctx
  isplitl [Hst]; · iexact Hst
  isplitl [Hrow Ho]
  · rw [st_eq]
    isplitl [Hrow]
    · iapply (Entails.of_eq (x_pieces d (xt m d))); iexact Hrow
    · iapply (o_pieces_ex d (V vo')); iexact Ho
  iintro ⟨Hst, Hdn⟩
  ihave Hdn' := (Entails.of_eq (dn_eq m d)) $$ Hdn
  icases Hdn' with ⟨Hrow, Ho⟩
  ihave Hrow' := (Entails.of_eq (x_pieces d (xt m d)).symm) $$ Hrow
  ihave Ho' := (Entails.of_eq (o_pieces_row d (xt m d))) $$ Ho
  ihave Hx := (pointsTo_split_subset (q := fullShare) (f := xt m d) (Finset.subset_univ (Pieces.rowSet qK.val : Finset (Idx (ℓx d))))).2 $$ [Hrow' Hxrest]
  · isplitl [Hrow']; · iexact Hrow'
    iexact Hxrest
  iapply Hk
  isplitl [Hst]; · iexact Hst
  rw [held_sub_split (SparseCore.T d) pair_sub ((opC m d).result V), held_pair,
    StableHlo.nullary_result_ne _ _ _ V (show (main_v0 : Ref sig .tc) ≠ main_v10 by decide), StableHlo.nullary_result, hV,
    held_congr (SparseCore.T d) (V := (opC m d).result V) (V' := V)
      (fun b hb => (opC m d).result_of_not_mem V (fun hw => (Finset.mem_sdiff.mp hb).2
        (Finset.mem_insert_of_mem (Finset.mem_singleton.mpr (Finset.mem_singleton.mp hw)))))]
  isplitl [Hx Ho']
  · isplitl [Hx]; · iexact Hx
    iexact Ho'
  · iexact Hrest

end Cert.Proof.CallB9

end
-- ==== Proof.CallPiecesB10.lean ====
/-
  The pieces of one call: row q of the transposed argument, held at some contents, is the 32 vector subcores' pieces of
  it; result q, held whole at some contents, is their pieces of it.
-/
import proofs.«206869_g37898791420194_cont_8to1_b_558_20_alg».proof.Proof.TileB10Defs
import proofs.«206869_g37898791420194_cont_8to1_b_558_20_alg».proof.Proof.LaunchPieces

noncomputable section

namespace Cert.Proof.CallB10

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic
open Cert.Proof.Pieces (crd)

variable {F : FTy → Type}

abbrev UU : Type := URounds (GSem nD τ sig) ℕ × Counters
local notation "𝕄" => MT nD τ sig (HIx 22) (Elt F) ℕ UU ℕ

/-- The call's number. -/
abbrev qK : Fin 22 := 10
theorem hq : qK.val < 22 := qK.isLt

abbrev vx' : DevRef τ sig := Proc.devRef .tc (main_v0 : Ref sig .tc)
abbrev vo' : DevRef τ sig := Proc.devRef .tc (main_v11 : Ref sig .tc)
abbrev ℓx (d : Dev nD) : Loc nD τ sig := (SparseCore.T d).loc main_v0
abbrev ℓo (d : Dev nD) : Loc nD τ sig := (SparseCore.T d).loc main_v11

variable [FloatOps F]

/-- Row q of the transposed argument, held at contents f, is the tasks' pieces of it. -/
theorem x_pieces (d : Dev nD) (f : Buf (Elt F) (ℓx d)) :
    (ℓx d ↦[(Pieces.rowSet qK.val : Finset (Idx (ℓx d)))]{fullShare} f : sProp 𝕄)
      = bigSep Finset.univ fun c : Fin 2 => bigSep Finset.univ fun s : Fin 16 => bigSep (Finset.range 18) (TileB10.xP d (crd c s) f) := by
  rw [← Pieces.in_cover qK.val hq, pointsTo_biUnion _ _ (Pieces.in_disj qK.val hq), Pieces.bigSep_tris]
  refine bigSep_congr fun c _ => bigSep_congr fun s _ => bigSep_congr fun n _ => ?_
  unfold TileB10.xP
  by_cases h : TileB10.valid (crd c s) n
  · rw [if_pos h, if_pos (show Pieces.pnum (c, s, n) < 500 from (TileB10.valid_iff _ _).mp h)]
    show _ = ((TileB10.inM (crd c s) n).view.loc (TileB10.thr d (crd c s)) ↦[(TileB10.inM (crd c s) n).view.set]{fullShare} f)
    rw [show (TileB10.inM (crd c s) n).view.set = Pieces.inSet qK.val hq (c, s, n) from View.set_slice_whole _ _]
  · rw [if_neg h, if_neg (show ¬ Pieces.pnum (c, s, n) < 500 from fun h' => h ((TileB10.valid_iff _ _).mpr h'))]
    rfl

/-- Result q, held whole at contents g, is the tasks' pieces of it at g. -/
theorem o_pieces (d : Dev nD) (g : Buf (Elt F) (ℓo d)) :
    (ℓo d ↦{fullShare} g : sProp 𝕄)
      = bigSep Finset.univ fun c : Fin 2 => bigSep Finset.univ fun s : Fin 16 => bigSep (Finset.range 18) fun n =>
          if TileB10.valid (crd c s) n then
            ((TileB10.outM (crd c s) n).view.loc (TileB10.thr d (crd c s)) ↦[(TileB10.outM (crd c s) n).view.set]{fullShare} g : sProp 𝕄)
          else iprop(emp) := by
  show (ℓo d ↦[(Finset.univ : Finset (Idx (ℓo d)))]{fullShare} g : sProp 𝕄) = _
  rw [← Pieces.out_cover, pointsTo_biUnion _ _ Pieces.out_disj, Pieces.bigSep_tris]
  refine bigSep_congr fun c _ => bigSep_congr fun s _ => bigSep_congr fun n _ => ?_
  by_cases h : TileB10.valid (crd c s) n
  · rw [if_pos h, if_pos (show Pieces.pnum (c, s, n) < 500 from (TileB10.valid_iff _ _).mp h)]
    rw [show (TileB10.outM (crd c s) n).view.set = Pieces.outSet (c, s, n) from View.set_slice_whole _ _]
  · rw [if_neg h, if_neg (show ¬ Pieces.pnum (c, s, n) < 500 from fun h' => h ((TileB10.valid_iff _ _).mpr h'))]
    rfl

end Cert.Proof.CallB10

end
-- ==== Proof.LaunchStepB10.lean ====
/-
  One call of a copy kernel, run from the TensorCore: from the TensorCore's buffers held at a valuation whose transposed
  argument is the transpose, the call leaves them at the same valuation but for result q, which holds row q.
-/
import proofs.«206869_g37898791420194_cont_8to1_b_558_20_alg».proof.Proof.LaunchPB
import proofs.«206869_g37898791420194_cont_8to1_b_558_20_alg».proof.Proof.CallPiecesB10

noncomputable section

namespace Cert.Proof.CallB10

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic
open Idealize.ShloMosaic.StableHlo (tcRefs devRef_mem_tcRefs held_sub_split held_congr)
open Cert.Proof.Pieces (crd)
open Cert.Proof.LaunchKB (K D 𝒱 𝒱₀ v₀ EH P xt)

variable {F : FTy → Type}

local notation "𝕄" => MT nD τ sig (HIx 22) (Elt F) ℕ UU ℕ

variable (m : (ℓ : Loc nD τ sig) → Buf (Elt F) ℓ)
variable [FloatOps F]

/-- Result q held whole at some contents gives every task its pieces of it, each at some contents. -/
theorem o_pieces_ex (d : Dev nD) (g : Buf (Elt F) (ℓo d)) :
    (ℓo d ↦{fullShare} g : sProp 𝕄)
      ⊢ bigSep Finset.univ fun c : Fin 2 => bigSep Finset.univ fun s : Fin 16 => bigSep (Finset.range 18) (TileB10.oP (F := F) d (crd c s)) := by
  rw [o_pieces d g]
  refine bigSep_mono fun c _ => bigSep_mono fun s _ => bigSep_mono fun n _ => ?_
  unfold TileB10.oP
  by_cases h : TileB10.valid (crd c s) n
  · rw [if_pos h, if_pos h]
    exact exists_intro (Φ := fun f => (((TileB10.outM (crd c s) n).view.loc (TileB10.thr d (crd c s)) ↦[(TileB10.outM (crd c s) n).view.set]{fullShare} f : sProp 𝕄))) g
  · rw [if_neg h, if_neg h]; exact BI.Entails.refl _

/-- The tasks' pieces of result q, each holding row q of f, are result q whole holding that row. -/
theorem o_pieces_row (d : Dev nD) (f : Buf (Elt F) (ℓx d)) :
    (bigSep Finset.univ fun c : Fin 2 => bigSep Finset.univ fun s : Fin 16 => bigSep (Finset.range 18) (TileB10.oQ d (crd c s) f))
      = (ℓo d ↦{fullShare} (Cert.Spec.row qK f : Buf (Elt F) (ℓo d)) : sProp 𝕄) := by
  rw [o_pieces d (Cert.Spec.row qK f : Buf (Elt F) (ℓo d))]
  rfl

omit [FloatOps F] in
/-- A separating conjunction over the call's grid of vector subcores, or of SparseCores, is one over sixteen, or two. -/
theorem bigSep_castSub (Φ : Fin 16 → sProp 𝕄) :
    (bigSep Finset.univ fun i : Fin ((K (F := F)).nSub qK) => Φ (i.cast (LaunchKB.nSub_eq qK))) = bigSep Finset.univ Φ :=
  bigSep_congr fun _ _ => congrArg Φ (Fin.ext rfl)
omit [FloatOps F] in
theorem bigSep_castCore (Φ : Fin 2 → sProp 𝕄) :
    (bigSep Finset.univ fun c : Fin ((K (F := F)).nCore qK) => Φ (c.cast (LaunchKB.nCore_eq qK))) = bigSep Finset.univ Φ :=
  bigSep_congr fun _ _ => congrArg Φ (Fin.ext rfl)

theorem goQ_eq (d : Dev nD) (c : Fin 2) (s : Fin 16) : LaunchKB.goQ m qK d c s = TileB10.goRes d (crd c s) (xt m d) := rfl
theorem tdQ_eq (d : Dev nD) (c : Fin 2) (s : Fin 16) : LaunchKB.tdQ m qK d c s = TileB10.tdRes d (crd c s) (xt m d) := rfl

/-- What the call takes for the two SparseCores: every task's pieces. -/
theorem st_eq (d : Dev nD) :
    (bigSep Finset.univ fun c : Fin ((K (F := F)).nCore qK) => (P m).st qK d c)
      = iprop((bigSep Finset.univ fun c : Fin 2 => bigSep Finset.univ fun s : Fin 16 => bigSep (Finset.range 18) (TileB10.xP d (crd c s) (xt m d)))
          ∗ (bigSep Finset.univ fun c : Fin 2 => bigSep Finset.univ fun s : Fin 16 => bigSep (Finset.range 18) (TileB10.oP (F := F) d (crd c s)))) := by
  have h1 : (bigSep Finset.univ fun c : Fin ((K (F := F)).nCore qK) => (P m).st qK d c)
      = bigSep Finset.univ fun c : Fin ((K (F := F)).nCore qK) =>
          (fun c' : Fin 2 => bigSep (Finset.univ : Finset (Fin 16)) fun s => LaunchKB.goQ m qK d c' s) (c.cast (LaunchKB.nCore_eq qK)) :=
    bigSep_congr fun c _ => bigSep_castSub (fun s => LaunchKB.goQ m qK d (c.cast (LaunchKB.nCore_eq qK)) s)
  rw [h1, bigSep_castCore (fun c' : Fin 2 => bigSep (Finset.univ : Finset (Fin 16)) fun s => LaunchKB.goQ m qK d c' s), ← bigSep_sep']
  refine bigSep_congr fun c _ => ?_
  rw [← bigSep_sep']
  refine bigSep_congr fun s _ => ?_
  rw [goQ_eq]; rfl

/-- What it hands back. -/
theorem dn_eq (d : Dev nD) :
    (bigSep Finset.univ fun c : Fin ((K (F := F)).nCore qK) => (P m).dn qK d c)
      = iprop((bigSep Finset.univ fun c : Fin 2 => bigSep Finset.univ fun s : Fin 16 => bigSep (Finset.range 18) (TileB10.xP d (crd c s) (xt m d)))
          ∗ (bigSep Finset.univ fun c : Fin 2 => bigSep Finset.univ fun s : Fin 16 => bigSep (Finset.range 18) (TileB10.oQ d (crd c s) (xt m d)))) := by
  have h1 : (bigSep Finset.univ fun c : Fin ((K (F := F)).nCore qK) => (P m).dn qK d c)
      = bigSep Finset.univ fun c : Fin ((K (F := F)).nCore qK) =>
          (fun c' : Fin 2 => bigSep (Finset.univ : Finset (Fin 16)) fun s => LaunchKB.tdQ m qK d c' s) (c.cast (LaunchKB.nCore_eq qK)) :=
    bigSep_congr fun c _ => bigSep_castSub (fun s => LaunchKB.tdQ m qK d (c.cast (LaunchKB.nCore_eq qK)) s)
  rw [h1, bigSep_castCore (fun c' : Fin 2 => bigSep (Finset.univ : Finset (Fin 16)) fun s => LaunchKB.tdQ m qK d c' s), ← bigSep_sep']
  refine bigSep_congr fun c _ => ?_
  rw [← bigSep_sep']
  refine bigSep_congr fun s _ => ?_
  rw [tdQ_eq]; rfl

omit [FloatOps F] in
theorem pair_sub : ({vx', vo'} : Finset (DevRef τ sig)) ⊆ tcRefs τ sig :=
  Finset.insert_subset (devRef_mem_tcRefs _) (Finset.singleton_subset_iff.mpr (devRef_mem_tcRefs _))

omit [FloatOps F] in
theorem held_pair (d : Dev nD) (V : Valuation τ sig (Elt F)) :
    (held (SparseCore.T d) ({vx', vo'} : Finset (DevRef τ sig)) V : sProp 𝕄) = iprop((ℓx d ↦{fullShare} V vx') ∗ (ℓo d ↦{fullShare} V vo')) := by
  unfold held; rw [SparseCore.bigSep_insert' (by decide), bigSep_singleton]

/-- What the call does to the TensorCore's buffers, as an operation on valuations: result q takes row q of the transpose. -/
abbrev opC (d : Dev nD) : HloOp τ sig (Elt F) := StableHlo.nullary main_v11 (Cert.Spec.row qK (xt m d))

/-- The call, from the TensorCore's buffers held at a valuation V whose transposed argument is the transpose: it
    leaves them at V but for result q, which holds row q of the transpose. -/
theorem step (κ : GSem nD τ sig → ℕ) (d : Dev nD) (V : Valuation τ sig (Elt F)) (hV : V vx' = xt m d) {Φ : PUnit → sProp 𝕄} :
    iprop((K (F := F)).ctx EH (P m) κ ∗ (K (F := F)).tcSt EH d qK.val ∗ held (SparseCore.T d) (tcRefs τ sig) V
        ∗ (((K (F := F)).tcSt EH d (qK.val + 1) ∗ held (SparseCore.T d) (tcRefs τ sig) ((opC m d).result V)) -∗ Φ ⟨⟩))
      ⊢ wp frame (wpE ((K (F := F)).defs (D (F := F))) 𝒱 (SparseCore.T d) none) Set.univ ((K (F := F)).run d qK) Φ := by
  rw [held_sub_split (SparseCore.T d) pair_sub V, held_pair, hV]
  iintro ⟨#Hctx, Hst, ⟨⟨Hx, Ho⟩, Hrest⟩, Hk⟩
  ihave Hx' := (pointsTo_split_subset (q := fullShare) (f := xt m d) (Finset.subset_univ (Pieces.rowSet qK.val : Finset (Idx (ℓx d))))).1 $$ Hx
  icases Hx' with ⟨Hrow, Hxrest⟩
  iapply ((K (F := F)).wp_run (D (F := F)) 𝒱 (EH := EH) (P := P m) κ d qK) $$ [Hst Hrow Ho Hk Hxrest Hrest]
  isplitr; · iexact Hctx
  isplitl [Hst]; · iexact Hst
  isplitl [Hrow Ho]
  · rw [st_eq]
    isplitl [Hrow]
    · iapply (Entails.of_eq (x_pieces d (xt m d))); iexact Hrow
    · iapply (o_pieces_ex d (V vo')); iexact Ho
  iintro ⟨Hst, Hdn⟩
  ihave Hdn' := (Entails.of_eq (dn_eq m d)) $$ Hdn
  icases Hdn' with ⟨Hrow, Ho⟩
  ihave Hrow' := (Entails.of_eq (x_pieces d (xt m d)).symm) $$ Hrow
  ihave Ho' := (Entails.of_eq (o_pieces_row d (xt m d))) $$ Ho
  ihave Hx := (pointsTo_split_subset (q := fullShare) (f := xt m d) (Finset.subset_univ (Pieces.rowSet qK.val : Finset (Idx (ℓx d))))).2 $$ [Hrow' Hxrest]
  · isplitl [Hrow']; · iexact Hrow'
    iexact Hxrest
  iapply Hk
  isplitl [Hst]; · iexact Hst
  rw [held_sub_split (SparseCore.T d) pair_sub ((opC m d).result V), held_pair,
    StableHlo.nullary_result_ne _ _ _ V (show (main_v0 : Ref sig .tc) ≠ main_v11 by decide), StableHlo.nullary_result, hV,
    held_congr (SparseCore.T d) (V := (opC m d).result V) (V' := V)
      (fun b hb => (opC m d).result_of_not_mem V (fun hw => (Finset.mem_sdiff.mp hb).2
        (Finset.mem_insert_of_mem (Finset.mem_singleton.mpr (Finset.mem_singleton.mp hw)))))]
  isplitl [Hx Ho']
  · isplitl [Hx]; · iexact Hx
    iexact Ho'
  · iexact Hrest

end Cert.Proof.CallB10

end
-- ==== Proof.CallPiecesB11.lean ====
/-
  The pieces of one call: row q of the transposed argument, held at some contents, is the 32 vector subcores' pieces of
  it; result q, held whole at some contents, is their pieces of it.
-/
import proofs.«206869_g37898791420194_cont_8to1_b_558_20_alg».proof.Proof.TileB11Defs
import proofs.«206869_g37898791420194_cont_8to1_b_558_20_alg».proof.Proof.LaunchPieces

noncomputable section

namespace Cert.Proof.CallB11

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic
open Cert.Proof.Pieces (crd)

variable {F : FTy → Type}

abbrev UU : Type := URounds (GSem nD τ sig) ℕ × Counters
local notation "𝕄" => MT nD τ sig (HIx 22) (Elt F) ℕ UU ℕ

/-- The call's number. -/
abbrev qK : Fin 22 := 11
theorem hq : qK.val < 22 := qK.isLt

abbrev vx' : DevRef τ sig := Proc.devRef .tc (main_v0 : Ref sig .tc)
abbrev vo' : DevRef τ sig := Proc.devRef .tc (main_v12 : Ref sig .tc)
abbrev ℓx (d : Dev nD) : Loc nD τ sig := (SparseCore.T d).loc main_v0
abbrev ℓo (d : Dev nD) : Loc nD τ sig := (SparseCore.T d).loc main_v12

variable [FloatOps F]

/-- Row q of the transposed argument, held at contents f, is the tasks' pieces of it. -/
theorem x_pieces (d : Dev nD) (f : Buf (Elt F) (ℓx d)) :
    (ℓx d ↦[(Pieces.rowSet qK.val : Finset (Idx (ℓx d)))]{fullShare} f : sProp 𝕄)
      = bigSep Finset.univ fun c : Fin 2 => bigSep Finset.univ fun s : Fin 16 => bigSep (Finset.range 18) (TileB11.xP d (crd c s) f) := by
  rw [← Pieces.in_cover qK.val hq, pointsTo_biUnion _ _ (Pieces.in_disj qK.val hq), Pieces.bigSep_tris]
  refine bigSep_congr fun c _ => bigSep_congr fun s _ => bigSep_congr fun n _ => ?_
  unfold TileB11.xP
  by_cases h : TileB11.valid (crd c s) n
  · rw [if_pos h, if_pos (show Pieces.pnum (c, s, n) < 500 from (TileB11.valid_iff _ _).mp h)]
    show _ = ((TileB11.inM (crd c s) n).view.loc (TileB11.thr d (crd c s)) ↦[(TileB11.inM (crd c s) n).view.set]{fullShare} f)
    rw [show (TileB11.inM (crd c s) n).view.set = Pieces.inSet qK.val hq (c, s, n) from View.set_slice_whole _ _]
  · rw [if_neg h, if_neg (show ¬ Pieces.pnum (c, s, n) < 500 from fun h' => h ((TileB11.valid_iff _ _).mpr h'))]
    rfl

/-- Result q, held whole at contents g, is the tasks' pieces of it at g. -/
theorem o_pieces (d : Dev nD) (g : Buf (Elt F) (ℓo d)) :
    (ℓo d ↦{fullShare} g : sProp 𝕄)
      = bigSep Finset.univ fun c : Fin 2 => bigSep Finset.univ fun s : Fin 16 => bigSep (Finset.range 18) fun n =>
          if TileB11.valid (crd c s) n then
            ((TileB11.outM (crd c s) n).view.loc (TileB11.thr d (crd c s)) ↦[(TileB11.outM (crd c s) n).view.set]{fullShare} g : sProp 𝕄)
          else iprop(emp) := by
  show (ℓo d ↦[(Finset.univ : Finset (Idx (ℓo d)))]{fullShare} g : sProp 𝕄) = _
  rw [← Pieces.out_cover, pointsTo_biUnion _ _ Pieces.out_disj, Pieces.bigSep_tris]
  refine bigSep_congr fun c _ => bigSep_congr fun s _ => bigSep_congr fun n _ => ?_
  by_cases h : TileB11.valid (crd c s) n
  · rw [if_pos h, if_pos (show Pieces.pnum (c, s, n) < 500 from (TileB11.valid_iff _ _).mp h)]
    rw [show (TileB11.outM (crd c s) n).view.set = Pieces.outSet (c, s, n) from View.set_slice_whole _ _]
  · rw [if_neg h, if_neg (show ¬ Pieces.pnum (c, s, n) < 500 from fun h' => h ((TileB11.valid_iff _ _).mpr h'))]
    rfl

end Cert.Proof.CallB11

end
-- ==== Proof.LaunchStepB11.lean ====
/-
  One call of a copy kernel, run from the TensorCore: from the TensorCore's buffers held at a valuation whose transposed
  argument is the transpose, the call leaves them at the same valuation but for result q, which holds row q.
-/
import proofs.«206869_g37898791420194_cont_8to1_b_558_20_alg».proof.Proof.LaunchPB
import proofs.«206869_g37898791420194_cont_8to1_b_558_20_alg».proof.Proof.CallPiecesB11

noncomputable section

namespace Cert.Proof.CallB11

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic
open Idealize.ShloMosaic.StableHlo (tcRefs devRef_mem_tcRefs held_sub_split held_congr)
open Cert.Proof.Pieces (crd)
open Cert.Proof.LaunchKB (K D 𝒱 𝒱₀ v₀ EH P xt)

variable {F : FTy → Type}

local notation "𝕄" => MT nD τ sig (HIx 22) (Elt F) ℕ UU ℕ

variable (m : (ℓ : Loc nD τ sig) → Buf (Elt F) ℓ)
variable [FloatOps F]

/-- Result q held whole at some contents gives every task its pieces of it, each at some contents. -/
theorem o_pieces_ex (d : Dev nD) (g : Buf (Elt F) (ℓo d)) :
    (ℓo d ↦{fullShare} g : sProp 𝕄)
      ⊢ bigSep Finset.univ fun c : Fin 2 => bigSep Finset.univ fun s : Fin 16 => bigSep (Finset.range 18) (TileB11.oP (F := F) d (crd c s)) := by
  rw [o_pieces d g]
  refine bigSep_mono fun c _ => bigSep_mono fun s _ => bigSep_mono fun n _ => ?_
  unfold TileB11.oP
  by_cases h : TileB11.valid (crd c s) n
  · rw [if_pos h, if_pos h]
    exact exists_intro (Φ := fun f => (((TileB11.outM (crd c s) n).view.loc (TileB11.thr d (crd c s)) ↦[(TileB11.outM (crd c s) n).view.set]{fullShare} f : sProp 𝕄))) g
  · rw [if_neg h, if_neg h]; exact BI.Entails.refl _

/-- The tasks' pieces of result q, each holding row q of f, are result q whole holding that row. -/
theorem o_pieces_row (d : Dev nD) (f : Buf (Elt F) (ℓx d)) :
    (bigSep Finset.univ fun c : Fin 2 => bigSep Finset.univ fun s : Fin 16 => bigSep (Finset.range 18) (TileB11.oQ d (crd c s) f))
      = (ℓo d ↦{fullShare} (Cert.Spec.row qK f : Buf (Elt F) (ℓo d)) : sProp 𝕄) := by
  rw [o_pieces d (Cert.Spec.row qK f : Buf (Elt F) (ℓo d))]
  rfl

omit [FloatOps F] in
/-- A separating conjunction over the call's grid of vector subcores, or of SparseCores, is one over sixteen, or two. -/
theorem bigSep_castSub (Φ : Fin 16 → sProp 𝕄) :
    (bigSep Finset.univ fun i : Fin ((K (F := F)).nSub qK) => Φ (i.cast (LaunchKB.nSub_eq qK))) = bigSep Finset.univ Φ :=
  bigSep_congr fun _ _ => congrArg Φ (Fin.ext rfl)
omit [FloatOps F] in
theorem bigSep_castCore (Φ : Fin 2 → sProp 𝕄) :
    (bigSep Finset.univ fun c : Fin ((K (F := F)).nCore qK) => Φ (c.cast (LaunchKB.nCore_eq qK))) = bigSep Finset.univ Φ :=
  bigSep_congr fun _ _ => congrArg Φ (Fin.ext rfl)

theorem goQ_eq (d : Dev nD) (c : Fin 2) (s : Fin 16) : LaunchKB.goQ m qK d c s = TileB11.goRes d (crd c s) (xt m d) := rfl
theorem tdQ_eq (d : Dev nD) (c : Fin 2) (s : Fin 16) : LaunchKB.tdQ m qK d c s = TileB11.tdRes d (crd c s) (xt m d) := rfl

/-- What the call takes for the two SparseCores: every task's pieces. -/
theorem st_eq (d : Dev nD) :
    (bigSep Finset.univ fun c : Fin ((K (F := F)).nCore qK) => (P m).st qK d c)
      = iprop((bigSep Finset.univ fun c : Fin 2 => bigSep Finset.univ fun s : Fin 16 => bigSep (Finset.range 18) (TileB11.xP d (crd c s) (xt m d)))
          ∗ (bigSep Finset.univ fun c : Fin 2 => bigSep Finset.univ fun s : Fin 16 => bigSep (Finset.range 18) (TileB11.oP (F := F) d (crd c s)))) := by
  have h1 : (bigSep Finset.univ fun c : Fin ((K (F := F)).nCore qK) => (P m).st qK d c)
      = bigSep Finset.univ fun c : Fin ((K (F := F)).nCore qK) =>
          (fun c' : Fin 2 => bigSep (Finset.univ : Finset (Fin 16)) fun s => LaunchKB.goQ m qK d c' s) (c.cast (LaunchKB.nCore_eq qK)) :=
    bigSep_congr fun c _ => bigSep_castSub (fun s => LaunchKB.goQ m qK d (c.cast (LaunchKB.nCore_eq qK)) s)
  rw [h1, bigSep_castCore (fun c' : Fin 2 => bigSep (Finset.univ : Finset (Fin 16)) fun s => LaunchKB.goQ m qK d c' s), ← bigSep_sep']
  refine bigSep_congr fun c _ => ?_
  rw [← bigSep_sep']
  refine bigSep_congr fun s _ => ?_
  rw [goQ_eq]; rfl

/-- What it hands back. -/
theorem dn_eq (d : Dev nD) :
    (bigSep Finset.univ fun c : Fin ((K (F := F)).nCore qK) => (P m).dn qK d c)
      = iprop((bigSep Finset.univ fun c : Fin 2 => bigSep Finset.univ fun s : Fin 16 => bigSep (Finset.range 18) (TileB11.xP d (crd c s) (xt m d)))
          ∗ (bigSep Finset.univ fun c : Fin 2 => bigSep Finset.univ fun s : Fin 16 => bigSep (Finset.range 18) (TileB11.oQ d (crd c s) (xt m d)))) := by
  have h1 : (bigSep Finset.univ fun c : Fin ((K (F := F)).nCore qK) => (P m).dn qK d c)
      = bigSep Finset.univ fun c : Fin ((K (F := F)).nCore qK) =>
          (fun c' : Fin 2 => bigSep (Finset.univ : Finset (Fin 16)) fun s => LaunchKB.tdQ m qK d c' s) (c.cast (LaunchKB.nCore_eq qK)) :=
    bigSep_congr fun c _ => bigSep_castSub (fun s => LaunchKB.tdQ m qK d (c.cast (LaunchKB.nCore_eq qK)) s)
  rw [h1, bigSep_castCore (fun c' : Fin 2 => bigSep (Finset.univ : Finset (Fin 16)) fun s => LaunchKB.tdQ m qK d c' s), ← bigSep_sep']
  refine bigSep_congr fun c _ => ?_
  rw [← bigSep_sep']
  refine bigSep_congr fun s _ => ?_
  rw [tdQ_eq]; rfl

omit [FloatOps F] in
theorem pair_sub : ({vx', vo'} : Finset (DevRef τ sig)) ⊆ tcRefs τ sig :=
  Finset.insert_subset (devRef_mem_tcRefs _) (Finset.singleton_subset_iff.mpr (devRef_mem_tcRefs _))

omit [FloatOps F] in
theorem held_pair (d : Dev nD) (V : Valuation τ sig (Elt F)) :
    (held (SparseCore.T d) ({vx', vo'} : Finset (DevRef τ sig)) V : sProp 𝕄) = iprop((ℓx d ↦{fullShare} V vx') ∗ (ℓo d ↦{fullShare} V vo')) := by
  unfold held; rw [SparseCore.bigSep_insert' (by decide), bigSep_singleton]

/-- What the call does to the TensorCore's buffers, as an operation on valuations: result q takes row q of the transpose. -/
abbrev opC (d : Dev nD) : HloOp τ sig (Elt F) := StableHlo.nullary main_v12 (Cert.Spec.row qK (xt m d))

/-- The call, from the TensorCore's buffers held at a valuation V whose transposed argument is the transpose: it
    leaves them at V but for result q, which holds row q of the transpose. -/
theorem step (κ : GSem nD τ sig → ℕ) (d : Dev nD) (V : Valuation τ sig (Elt F)) (hV : V vx' = xt m d) {Φ : PUnit → sProp 𝕄} :
    iprop((K (F := F)).ctx EH (P m) κ ∗ (K (F := F)).tcSt EH d qK.val ∗ held (SparseCore.T d) (tcRefs τ sig) V
        ∗ (((K (F := F)).tcSt EH d (qK.val + 1) ∗ held (SparseCore.T d) (tcRefs τ sig) ((opC m d).result V)) -∗ Φ ⟨⟩))
      ⊢ wp frame (wpE ((K (F := F)).defs (D (F := F))) 𝒱 (SparseCore.T d) none) Set.univ ((K (F := F)).run d qK) Φ := by
  rw [held_sub_split (SparseCore.T d) pair_sub V, held_pair, hV]
  iintro ⟨#Hctx, Hst, ⟨⟨Hx, Ho⟩, Hrest⟩, Hk⟩
  ihave Hx' := (pointsTo_split_subset (q := fullShare) (f := xt m d) (Finset.subset_univ (Pieces.rowSet qK.val : Finset (Idx (ℓx d))))).1 $$ Hx
  icases Hx' with ⟨Hrow, Hxrest⟩
  iapply ((K (F := F)).wp_run (D (F := F)) 𝒱 (EH := EH) (P := P m) κ d qK) $$ [Hst Hrow Ho Hk Hxrest Hrest]
  isplitr; · iexact Hctx
  isplitl [Hst]; · iexact Hst
  isplitl [Hrow Ho]
  · rw [st_eq]
    isplitl [Hrow]
    · iapply (Entails.of_eq (x_pieces d (xt m d))); iexact Hrow
    · iapply (o_pieces_ex d (V vo')); iexact Ho
  iintro ⟨Hst, Hdn⟩
  ihave Hdn' := (Entails.of_eq (dn_eq m d)) $$ Hdn
  icases Hdn' with ⟨Hrow, Ho⟩
  ihave Hrow' := (Entails.of_eq (x_pieces d (xt m d)).symm) $$ Hrow
  ihave Ho' := (Entails.of_eq (o_pieces_row d (xt m d))) $$ Ho
  ihave Hx := (pointsTo_split_subset (q := fullShare) (f := xt m d) (Finset.subset_univ (Pieces.rowSet qK.val : Finset (Idx (ℓx d))))).2 $$ [Hrow' Hxrest]
  · isplitl [Hrow']; · iexact Hrow'
    iexact Hxrest
  iapply Hk
  isplitl [Hst]; · iexact Hst
  rw [held_sub_split (SparseCore.T d) pair_sub ((opC m d).result V), held_pair,
    StableHlo.nullary_result_ne _ _ _ V (show (main_v0 : Ref sig .tc) ≠ main_v12 by decide), StableHlo.nullary_result, hV,
    held_congr (SparseCore.T d) (V := (opC m d).result V) (V' := V)
      (fun b hb => (opC m d).result_of_not_mem V (fun hw => (Finset.mem_sdiff.mp hb).2
        (Finset.mem_insert_of_mem (Finset.mem_singleton.mpr (Finset.mem_singleton.mp hw)))))]
  isplitl [Hx Ho']
  · isplitl [Hx]; · iexact Hx
    iexact Ho'
  · iexact Hrest

end Cert.Proof.CallB11

end
-- ==== Proof.CallPiecesB12.lean ====
/-
  The pieces of one call: row q of the transposed argument, held at some contents, is the 32 vector subcores' pieces of
  it; result q, held whole at some contents, is their pieces of it.
-/
import proofs.«206869_g37898791420194_cont_8to1_b_558_20_alg».proof.Proof.TileB12Defs
import proofs.«206869_g37898791420194_cont_8to1_b_558_20_alg».proof.Proof.LaunchPieces

noncomputable section

namespace Cert.Proof.CallB12

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic
open Cert.Proof.Pieces (crd)

variable {F : FTy → Type}

abbrev UU : Type := URounds (GSem nD τ sig) ℕ × Counters
local notation "𝕄" => MT nD τ sig (HIx 22) (Elt F) ℕ UU ℕ

/-- The call's number. -/
abbrev qK : Fin 22 := 12
theorem hq : qK.val < 22 := qK.isLt

abbrev vx' : DevRef τ sig := Proc.devRef .tc (main_v0 : Ref sig .tc)
abbrev vo' : DevRef τ sig := Proc.devRef .tc (main_v13 : Ref sig .tc)
abbrev ℓx (d : Dev nD) : Loc nD τ sig := (SparseCore.T d).loc main_v0
abbrev ℓo (d : Dev nD) : Loc nD τ sig := (SparseCore.T d).loc main_v13

variable [FloatOps F]

/-- Row q of the transposed argument, held at contents f, is the tasks' pieces of it. -/
theorem x_pieces (d : Dev nD) (f : Buf (Elt F) (ℓx d)) :
    (ℓx d ↦[(Pieces.rowSet qK.val : Finset (Idx (ℓx d)))]{fullShare} f : sProp 𝕄)
      = bigSep Finset.univ fun c : Fin 2 => bigSep Finset.univ fun s : Fin 16 => bigSep (Finset.range 18) (TileB12.xP d (crd c s) f) := by
  rw [← Pieces.in_cover qK.val hq, pointsTo_biUnion _ _ (Pieces.in_disj qK.val hq), Pieces.bigSep_tris]
  refine bigSep_congr fun c _ => bigSep_congr fun s _ => bigSep_congr fun n _ => ?_
  unfold TileB12.xP
  by_cases h : TileB12.valid (crd c s) n
  · rw [if_pos h, if_pos (show Pieces.pnum (c, s, n) < 500 from (TileB12.valid_iff _ _).mp h)]
    show _ = ((TileB12.inM (crd c s) n).view.loc (TileB12.thr d (crd c s)) ↦[(TileB12.inM (crd c s) n).view.set]{fullShare} f)
    rw [show (TileB12.inM (crd c s) n).view.set = Pieces.inSet qK.val hq (c, s, n) from View.set_slice_whole _ _]
  · rw [if_neg h, if_neg (show ¬ Pieces.pnum (c, s, n) < 500 from fun h' => h ((TileB12.valid_iff _ _).mpr h'))]
    rfl

/-- Result q, held whole at contents g, is the tasks' pieces of it at g. -/
theorem o_pieces (d : Dev nD) (g : Buf (Elt F) (ℓo d)) :
    (ℓo d ↦{fullShare} g : sProp 𝕄)
      = bigSep Finset.univ fun c : Fin 2 => bigSep Finset.univ fun s : Fin 16 => bigSep (Finset.range 18) fun n =>
          if TileB12.valid (crd c s) n then
            ((TileB12.outM (crd c s) n).view.loc (TileB12.thr d (crd c s)) ↦[(TileB12.outM (crd c s) n).view.set]{fullShare} g : sProp 𝕄)
          else iprop(emp) := by
  show (ℓo d ↦[(Finset.univ : Finset (Idx (ℓo d)))]{fullShare} g : sProp 𝕄) = _
  rw [← Pieces.out_cover, pointsTo_biUnion _ _ Pieces.out_disj, Pieces.bigSep_tris]
  refine bigSep_congr fun c _ => bigSep_congr fun s _ => bigSep_congr fun n _ => ?_
  by_cases h : TileB12.valid (crd c s) n
  · rw [if_pos h, if_pos (show Pieces.pnum (c, s, n) < 500 from (TileB12.valid_iff _ _).mp h)]
    rw [show (TileB12.outM (crd c s) n).view.set = Pieces.outSet (c, s, n) from View.set_slice_whole _ _]
  · rw [if_neg h, if_neg (show ¬ Pieces.pnum (c, s, n) < 500 from fun h' => h ((TileB12.valid_iff _ _).mpr h'))]
    rfl

end Cert.Proof.CallB12

end
-- ==== Proof.LaunchStepB12.lean ====
/-
  One call of a copy kernel, run from the TensorCore: from the TensorCore's buffers held at a valuation whose transposed
  argument is the transpose, the call leaves them at the same valuation but for result q, which holds row q.
-/
import proofs.«206869_g37898791420194_cont_8to1_b_558_20_alg».proof.Proof.LaunchPB
import proofs.«206869_g37898791420194_cont_8to1_b_558_20_alg».proof.Proof.CallPiecesB12

noncomputable section

namespace Cert.Proof.CallB12

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic
open Idealize.ShloMosaic.StableHlo (tcRefs devRef_mem_tcRefs held_sub_split held_congr)
open Cert.Proof.Pieces (crd)
open Cert.Proof.LaunchKB (K D 𝒱 𝒱₀ v₀ EH P xt)

variable {F : FTy → Type}

local notation "𝕄" => MT nD τ sig (HIx 22) (Elt F) ℕ UU ℕ

variable (m : (ℓ : Loc nD τ sig) → Buf (Elt F) ℓ)
variable [FloatOps F]

/-- Result q held whole at some contents gives every task its pieces of it, each at some contents. -/
theorem o_pieces_ex (d : Dev nD) (g : Buf (Elt F) (ℓo d)) :
    (ℓo d ↦{fullShare} g : sProp 𝕄)
      ⊢ bigSep Finset.univ fun c : Fin 2 => bigSep Finset.univ fun s : Fin 16 => bigSep (Finset.range 18) (TileB12.oP (F := F) d (crd c s)) := by
  rw [o_pieces d g]
  refine bigSep_mono fun c _ => bigSep_mono fun s _ => bigSep_mono fun n _ => ?_
  unfold TileB12.oP
  by_cases h : TileB12.valid (crd c s) n
  · rw [if_pos h, if_pos h]
    exact exists_intro (Φ := fun f => (((TileB12.outM (crd c s) n).view.loc (TileB12.thr d (crd c s)) ↦[(TileB12.outM (crd c s) n).view.set]{fullShare} f : sProp 𝕄))) g
  · rw [if_neg h, if_neg h]; exact BI.Entails.refl _

/-- The tasks' pieces of result q, each holding row q of f, are result q whole holding that row. -/
theorem o_pieces_row (d : Dev nD) (f : Buf (Elt F) (ℓx d)) :
    (bigSep Finset.univ fun c : Fin 2 => bigSep Finset.univ fun s : Fin 16 => bigSep (Finset.range 18) (TileB12.oQ d (crd c s) f))
      = (ℓo d ↦{fullShare} (Cert.Spec.row qK f : Buf (Elt F) (ℓo d)) : sProp 𝕄) := by
  rw [o_pieces d (Cert.Spec.row qK f : Buf (Elt F) (ℓo d))]
  rfl

omit [FloatOps F] in
/-- A separating conjunction over the call's grid of vector subcores, or of SparseCores, is one over sixteen, or two. -/
theorem bigSep_castSub (Φ : Fin 16 → sProp 𝕄) :
    (bigSep Finset.univ fun i : Fin ((K (F := F)).nSub qK) => Φ (i.cast (LaunchKB.nSub_eq qK))) = bigSep Finset.univ Φ :=
  bigSep_congr fun _ _ => congrArg Φ (Fin.ext rfl)
omit [FloatOps F] in
theorem bigSep_castCore (Φ : Fin 2 → sProp 𝕄) :
    (bigSep Finset.univ fun c : Fin ((K (F := F)).nCore qK) => Φ (c.cast (LaunchKB.nCore_eq qK))) = bigSep Finset.univ Φ :=
  bigSep_congr fun _ _ => congrArg Φ (Fin.ext rfl)

theorem goQ_eq (d : Dev nD) (c : Fin 2) (s : Fin 16) : LaunchKB.goQ m qK d c s = TileB12.goRes d (crd c s) (xt m d) := rfl
theorem tdQ_eq (d : Dev nD) (c : Fin 2) (s : Fin 16) : LaunchKB.tdQ m qK d c s = TileB12.tdRes d (crd c s) (xt m d) := rfl

/-- What the call takes for the two SparseCores: every task's pieces. -/
theorem st_eq (d : Dev nD) :
    (bigSep Finset.univ fun c : Fin ((K (F := F)).nCore qK) => (P m).st qK d c)
      = iprop((bigSep Finset.univ fun c : Fin 2 => bigSep Finset.univ fun s : Fin 16 => bigSep (Finset.range 18) (TileB12.xP d (crd c s) (xt m d)))
          ∗ (bigSep Finset.univ fun c : Fin 2 => bigSep Finset.univ fun s : Fin 16 => bigSep (Finset.range 18) (TileB12.oP (F := F) d (crd c s)))) := by
  have h1 : (bigSep Finset.univ fun c : Fin ((K (F := F)).nCore qK) => (P m).st qK d c)
      = bigSep Finset.univ fun c : Fin ((K (F := F)).nCore qK) =>
          (fun c' : Fin 2 => bigSep (Finset.univ : Finset (Fin 16)) fun s => LaunchKB.goQ m qK d c' s) (c.cast (LaunchKB.nCore_eq qK)) :=
    bigSep_congr fun c _ => bigSep_castSub (fun s => LaunchKB.goQ m qK d (c.cast (LaunchKB.nCore_eq qK)) s)
  rw [h1, bigSep_castCore (fun c' : Fin 2 => bigSep (Finset.univ : Finset (Fin 16)) fun s => LaunchKB.goQ m qK d c' s), ← bigSep_sep']
  refine bigSep_congr fun c _ => ?_
  rw [← bigSep_sep']
  refine bigSep_congr fun s _ => ?_
  rw [goQ_eq]; rfl

/-- What it hands back. -/
theorem dn_eq (d : Dev nD) :
    (bigSep Finset.univ fun c : Fin ((K (F := F)).nCore qK) => (P m).dn qK d c)
      = iprop((bigSep Finset.univ fun c : Fin 2 => bigSep Finset.univ fun s : Fin 16 => bigSep (Finset.range 18) (TileB12.xP d (crd c s) (xt m d)))
          ∗ (bigSep Finset.univ fun c : Fin 2 => bigSep Finset.univ fun s : Fin 16 => bigSep (Finset.range 18) (TileB12.oQ d (crd c s) (xt m d)))) := by
  have h1 : (bigSep Finset.univ fun c : Fin ((K (F := F)).nCore qK) => (P m).dn qK d c)
      = bigSep Finset.univ fun c : Fin ((K (F := F)).nCore qK) =>
          (fun c' : Fin 2 => bigSep (Finset.univ : Finset (Fin 16)) fun s => LaunchKB.tdQ m qK d c' s) (c.cast (LaunchKB.nCore_eq qK)) :=
    bigSep_congr fun c _ => bigSep_castSub (fun s => LaunchKB.tdQ m qK d (c.cast (LaunchKB.nCore_eq qK)) s)
  rw [h1, bigSep_castCore (fun c' : Fin 2 => bigSep (Finset.univ : Finset (Fin 16)) fun s => LaunchKB.tdQ m qK d c' s), ← bigSep_sep']
  refine bigSep_congr fun c _ => ?_
  rw [← bigSep_sep']
  refine bigSep_congr fun s _ => ?_
  rw [tdQ_eq]; rfl

omit [FloatOps F] in
theorem pair_sub : ({vx', vo'} : Finset (DevRef τ sig)) ⊆ tcRefs τ sig :=
  Finset.insert_subset (devRef_mem_tcRefs _) (Finset.singleton_subset_iff.mpr (devRef_mem_tcRefs _))

omit [FloatOps F] in
theorem held_pair (d : Dev nD) (V : Valuation τ sig (Elt F)) :
    (held (SparseCore.T d) ({vx', vo'} : Finset (DevRef τ sig)) V : sProp 𝕄) = iprop((ℓx d ↦{fullShare} V vx') ∗ (ℓo d ↦{fullShare} V vo')) := by
  unfold held; rw [SparseCore.bigSep_insert' (by decide), bigSep_singleton]

/-- What the call does to the TensorCore's buffers, as an operation on valuations: result q takes row q of the transpose. -/
abbrev opC (d : Dev nD) : HloOp τ sig (Elt F) := StableHlo.nullary main_v13 (Cert.Spec.row qK (xt m d))

/-- The call, from the TensorCore's buffers held at a valuation V whose transposed argument is the transpose: it
    leaves them at V but for result q, which holds row q of the transpose. -/
theorem step (κ : GSem nD τ sig → ℕ) (d : Dev nD) (V : Valuation τ sig (Elt F)) (hV : V vx' = xt m d) {Φ : PUnit → sProp 𝕄} :
    iprop((K (F := F)).ctx EH (P m) κ ∗ (K (F := F)).tcSt EH d qK.val ∗ held (SparseCore.T d) (tcRefs τ sig) V
        ∗ (((K (F := F)).tcSt EH d (qK.val + 1) ∗ held (SparseCore.T d) (tcRefs τ sig) ((opC m d).result V)) -∗ Φ ⟨⟩))
      ⊢ wp frame (wpE ((K (F := F)).defs (D (F := F))) 𝒱 (SparseCore.T d) none) Set.univ ((K (F := F)).run d qK) Φ := by
  rw [held_sub_split (SparseCore.T d) pair_sub V, held_pair, hV]
  iintro ⟨#Hctx, Hst, ⟨⟨Hx, Ho⟩, Hrest⟩, Hk⟩
  ihave Hx' := (pointsTo_split_subset (q := fullShare) (f := xt m d) (Finset.subset_univ (Pieces.rowSet qK.val : Finset (Idx (ℓx d))))).1 $$ Hx
  icases Hx' with ⟨Hrow, Hxrest⟩
  iapply ((K (F := F)).wp_run (D (F := F)) 𝒱 (EH := EH) (P := P m) κ d qK) $$ [Hst Hrow Ho Hk Hxrest Hrest]
  isplitr; · iexact Hctx
  isplitl [Hst]; · iexact Hst
  isplitl [Hrow Ho]
  · rw [st_eq]
    isplitl [Hrow]
    · iapply (Entails.of_eq (x_pieces d (xt m d))); iexact Hrow
    · iapply (o_pieces_ex d (V vo')); iexact Ho
  iintro ⟨Hst, Hdn⟩
  ihave Hdn' := (Entails.of_eq (dn_eq m d)) $$ Hdn
  icases Hdn' with ⟨Hrow, Ho⟩
  ihave Hrow' := (Entails.of_eq (x_pieces d (xt m d)).symm) $$ Hrow
  ihave Ho' := (Entails.of_eq (o_pieces_row d (xt m d))) $$ Ho
  ihave Hx := (pointsTo_split_subset (q := fullShare) (f := xt m d) (Finset.subset_univ (Pieces.rowSet qK.val : Finset (Idx (ℓx d))))).2 $$ [Hrow' Hxrest]
  · isplitl [Hrow']; · iexact Hrow'
    iexact Hxrest
  iapply Hk
  isplitl [Hst]; · iexact Hst
  rw [held_sub_split (SparseCore.T d) pair_sub ((opC m d).result V), held_pair,
    StableHlo.nullary_result_ne _ _ _ V (show (main_v0 : Ref sig .tc) ≠ main_v13 by decide), StableHlo.nullary_result, hV,
    held_congr (SparseCore.T d) (V := (opC m d).result V) (V' := V)
      (fun b hb => (opC m d).result_of_not_mem V (fun hw => (Finset.mem_sdiff.mp hb).2
        (Finset.mem_insert_of_mem (Finset.mem_singleton.mpr (Finset.mem_singleton.mp hw)))))]
  isplitl [Hx Ho']
  · isplitl [Hx]; · iexact Hx
    iexact Ho'
  · iexact Hrest

end Cert.Proof.CallB12

end
-- ==== Proof.CallPiecesB13.lean ====
/-
  The pieces of one call: row q of the transposed argument, held at some contents, is the 32 vector subcores' pieces of
  it; result q, held whole at some contents, is their pieces of it.
-/
import proofs.«206869_g37898791420194_cont_8to1_b_558_20_alg».proof.Proof.TileB13Defs
import proofs.«206869_g37898791420194_cont_8to1_b_558_20_alg».proof.Proof.LaunchPieces

noncomputable section

namespace Cert.Proof.CallB13

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic
open Cert.Proof.Pieces (crd)

variable {F : FTy → Type}

abbrev UU : Type := URounds (GSem nD τ sig) ℕ × Counters
local notation "𝕄" => MT nD τ sig (HIx 22) (Elt F) ℕ UU ℕ

/-- The call's number. -/
abbrev qK : Fin 22 := 13
theorem hq : qK.val < 22 := qK.isLt

abbrev vx' : DevRef τ sig := Proc.devRef .tc (main_v0 : Ref sig .tc)
abbrev vo' : DevRef τ sig := Proc.devRef .tc (main_v14 : Ref sig .tc)
abbrev ℓx (d : Dev nD) : Loc nD τ sig := (SparseCore.T d).loc main_v0
abbrev ℓo (d : Dev nD) : Loc nD τ sig := (SparseCore.T d).loc main_v14

variable [FloatOps F]

/-- Row q of the transposed argument, held at contents f, is the tasks' pieces of it. -/
theorem x_pieces (d : Dev nD) (f : Buf (Elt F) (ℓx d)) :
    (ℓx d ↦[(Pieces.rowSet qK.val : Finset (Idx (ℓx d)))]{fullShare} f : sProp 𝕄)
      = bigSep Finset.univ fun c : Fin 2 => bigSep Finset.univ fun s : Fin 16 => bigSep (Finset.range 18) (TileB13.xP d (crd c s) f) := by
  rw [← Pieces.in_cover qK.val hq, pointsTo_biUnion _ _ (Pieces.in_disj qK.val hq), Pieces.bigSep_tris]
  refine bigSep_congr fun c _ => bigSep_congr fun s _ => bigSep_congr fun n _ => ?_
  unfold TileB13.xP
  by_cases h : TileB13.valid (crd c s) n
  · rw [if_pos h, if_pos (show Pieces.pnum (c, s, n) < 500 from (TileB13.valid_iff _ _).mp h)]
    show _ = ((TileB13.inM (crd c s) n).view.loc (TileB13.thr d (crd c s)) ↦[(TileB13.inM (crd c s) n).view.set]{fullShare} f)
    rw [show (TileB13.inM (crd c s) n).view.set = Pieces.inSet qK.val hq (c, s, n) from View.set_slice_whole _ _]
  · rw [if_neg h, if_neg (show ¬ Pieces.pnum (c, s, n) < 500 from fun h' => h ((TileB13.valid_iff _ _).mpr h'))]
    rfl

/-- Result q, held whole at contents g, is the tasks' pieces of it at g. -/
theorem o_pieces (d : Dev nD) (g : Buf (Elt F) (ℓo d)) :
    (ℓo d ↦{fullShare} g : sProp 𝕄)
      = bigSep Finset.univ fun c : Fin 2 => bigSep Finset.univ fun s : Fin 16 => bigSep (Finset.range 18) fun n =>
          if TileB13.valid (crd c s) n then
            ((TileB13.outM (crd c s) n).view.loc (TileB13.thr d (crd c s)) ↦[(TileB13.outM (crd c s) n).view.set]{fullShare} g : sProp 𝕄)
          else iprop(emp) := by
  show (ℓo d ↦[(Finset.univ : Finset (Idx (ℓo d)))]{fullShare} g : sProp 𝕄) = _
  rw [← Pieces.out_cover, pointsTo_biUnion _ _ Pieces.out_disj, Pieces.bigSep_tris]
  refine bigSep_congr fun c _ => bigSep_congr fun s _ => bigSep_congr fun n _ => ?_
  by_cases h : TileB13.valid (crd c s) n
  · rw [if_pos h, if_pos (show Pieces.pnum (c, s, n) < 500 from (TileB13.valid_iff _ _).mp h)]
    rw [show (TileB13.outM (crd c s) n).view.set = Pieces.outSet (c, s, n) from View.set_slice_whole _ _]
  · rw [if_neg h, if_neg (show ¬ Pieces.pnum (c, s, n) < 500 from fun h' => h ((TileB13.valid_iff _ _).mpr h'))]
    rfl

end Cert.Proof.CallB13

end
-- ==== Proof.LaunchStepB13.lean ====
/-
  One call of a copy kernel, run from the TensorCore: from the TensorCore's buffers held at a valuation whose transposed
  argument is the transpose, the call leaves them at the same valuation but for result q, which holds row q.
-/
import proofs.«206869_g37898791420194_cont_8to1_b_558_20_alg».proof.Proof.LaunchPB
import proofs.«206869_g37898791420194_cont_8to1_b_558_20_alg».proof.Proof.CallPiecesB13

noncomputable section

namespace Cert.Proof.CallB13

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic
open Idealize.ShloMosaic.StableHlo (tcRefs devRef_mem_tcRefs held_sub_split held_congr)
open Cert.Proof.Pieces (crd)
open Cert.Proof.LaunchKB (K D 𝒱 𝒱₀ v₀ EH P xt)

variable {F : FTy → Type}

local notation "𝕄" => MT nD τ sig (HIx 22) (Elt F) ℕ UU ℕ

variable (m : (ℓ : Loc nD τ sig) → Buf (Elt F) ℓ)
variable [FloatOps F]

/-- Result q held whole at some contents gives every task its pieces of it, each at some contents. -/
theorem o_pieces_ex (d : Dev nD) (g : Buf (Elt F) (ℓo d)) :
    (ℓo d ↦{fullShare} g : sProp 𝕄)
      ⊢ bigSep Finset.univ fun c : Fin 2 => bigSep Finset.univ fun s : Fin 16 => bigSep (Finset.range 18) (TileB13.oP (F := F) d (crd c s)) := by
  rw [o_pieces d g]
  refine bigSep_mono fun c _ => bigSep_mono fun s _ => bigSep_mono fun n _ => ?_
  unfold TileB13.oP
  by_cases h : TileB13.valid (crd c s) n
  · rw [if_pos h, if_pos h]
    exact exists_intro (Φ := fun f => (((TileB13.outM (crd c s) n).view.loc (TileB13.thr d (crd c s)) ↦[(TileB13.outM (crd c s) n).view.set]{fullShare} f : sProp 𝕄))) g
  · rw [if_neg h, if_neg h]; exact BI.Entails.refl _

/-- The tasks' pieces of result q, each holding row q of f, are result q whole holding that row. -/
theorem o_pieces_row (d : Dev nD) (f : Buf (Elt F) (ℓx d)) :
    (bigSep Finset.univ fun c : Fin 2 => bigSep Finset.univ fun s : Fin 16 => bigSep (Finset.range 18) (TileB13.oQ d (crd c s) f))
      = (ℓo d ↦{fullShare} (Cert.Spec.row qK f : Buf (Elt F) (ℓo d)) : sProp 𝕄) := by
  rw [o_pieces d (Cert.Spec.row qK f : Buf (Elt F) (ℓo d))]
  rfl

omit [FloatOps F] in
/-- A separating conjunction over the call's grid of vector subcores, or of SparseCores, is one over sixteen, or two. -/
theorem bigSep_castSub (Φ : Fin 16 → sProp 𝕄) :
    (bigSep Finset.univ fun i : Fin ((K (F := F)).nSub qK) => Φ (i.cast (LaunchKB.nSub_eq qK))) = bigSep Finset.univ Φ :=
  bigSep_congr fun _ _ => congrArg Φ (Fin.ext rfl)
omit [FloatOps F] in
theorem bigSep_castCore (Φ : Fin 2 → sProp 𝕄) :
    (bigSep Finset.univ fun c : Fin ((K (F := F)).nCore qK) => Φ (c.cast (LaunchKB.nCore_eq qK))) = bigSep Finset.univ Φ :=
  bigSep_congr fun _ _ => congrArg Φ (Fin.ext rfl)

theorem goQ_eq (d : Dev nD) (c : Fin 2) (s : Fin 16) : LaunchKB.goQ m qK d c s = TileB13.goRes d (crd c s) (xt m d) := rfl
theorem tdQ_eq (d : Dev nD) (c : Fin 2) (s : Fin 16) : LaunchKB.tdQ m qK d c s = TileB13.tdRes d (crd c s) (xt m d) := rfl

/-- What the call takes for the two SparseCores: every task's pieces. -/
theorem st_eq (d : Dev nD) :
    (bigSep Finset.univ fun c : Fin ((K (F := F)).nCore qK) => (P m).st qK d c)
      = iprop((bigSep Finset.univ fun c : Fin 2 => bigSep Finset.univ fun s : Fin 16 => bigSep (Finset.range 18) (TileB13.xP d (crd c s) (xt m d)))
          ∗ (bigSep Finset.univ fun c : Fin 2 => bigSep Finset.univ fun s : Fin 16 => bigSep (Finset.range 18) (TileB13.oP (F := F) d (crd c s)))) := by
  have h1 : (bigSep Finset.univ fun c : Fin ((K (F := F)).nCore qK) => (P m).st qK d c)
      = bigSep Finset.univ fun c : Fin ((K (F := F)).nCore qK) =>
          (fun c' : Fin 2 => bigSep (Finset.univ : Finset (Fin 16)) fun s => LaunchKB.goQ m qK d c' s) (c.cast (LaunchKB.nCore_eq qK)) :=
    bigSep_congr fun c _ => bigSep_castSub (fun s => LaunchKB.goQ m qK d (c.cast (LaunchKB.nCore_eq qK)) s)
  rw [h1, bigSep_castCore (fun c' : Fin 2 => bigSep (Finset.univ : Finset (Fin 16)) fun s => LaunchKB.goQ m qK d c' s), ← bigSep_sep']
  refine bigSep_congr fun c _ => ?_
  rw [← bigSep_sep']
  refine bigSep_congr fun s _ => ?_
  rw [goQ_eq]; rfl

/-- What it hands back. -/
theorem dn_eq (d : Dev nD) :
    (bigSep Finset.univ fun c : Fin ((K (F := F)).nCore qK) => (P m).dn qK d c)
      = iprop((bigSep Finset.univ fun c : Fin 2 => bigSep Finset.univ fun s : Fin 16 => bigSep (Finset.range 18) (TileB13.xP d (crd c s) (xt m d)))
          ∗ (bigSep Finset.univ fun c : Fin 2 => bigSep Finset.univ fun s : Fin 16 => bigSep (Finset.range 18) (TileB13.oQ d (crd c s) (xt m d)))) := by
  have h1 : (bigSep Finset.univ fun c : Fin ((K (F := F)).nCore qK) => (P m).dn qK d c)
      = bigSep Finset.univ fun c : Fin ((K (F := F)).nCore qK) =>
          (fun c' : Fin 2 => bigSep (Finset.univ : Finset (Fin 16)) fun s => LaunchKB.tdQ m qK d c' s) (c.cast (LaunchKB.nCore_eq qK)) :=
    bigSep_congr fun c _ => bigSep_castSub (fun s => LaunchKB.tdQ m qK d (c.cast (LaunchKB.nCore_eq qK)) s)
  rw [h1, bigSep_castCore (fun c' : Fin 2 => bigSep (Finset.univ : Finset (Fin 16)) fun s => LaunchKB.tdQ m qK d c' s), ← bigSep_sep']
  refine bigSep_congr fun c _ => ?_
  rw [← bigSep_sep']
  refine bigSep_congr fun s _ => ?_
  rw [tdQ_eq]; rfl

omit [FloatOps F] in
theorem pair_sub : ({vx', vo'} : Finset (DevRef τ sig)) ⊆ tcRefs τ sig :=
  Finset.insert_subset (devRef_mem_tcRefs _) (Finset.singleton_subset_iff.mpr (devRef_mem_tcRefs _))

omit [FloatOps F] in
theorem held_pair (d : Dev nD) (V : Valuation τ sig (Elt F)) :
    (held (SparseCore.T d) ({vx', vo'} : Finset (DevRef τ sig)) V : sProp 𝕄) = iprop((ℓx d ↦{fullShare} V vx') ∗ (ℓo d ↦{fullShare} V vo')) := by
  unfold held; rw [SparseCore.bigSep_insert' (by decide), bigSep_singleton]

/-- What the call does to the TensorCore's buffers, as an operation on valuations: result q takes row q of the transpose. -/
abbrev opC (d : Dev nD) : HloOp τ sig (Elt F) := StableHlo.nullary main_v14 (Cert.Spec.row qK (xt m d))

/-- The call, from the TensorCore's buffers held at a valuation V whose transposed argument is the transpose: it
    leaves them at V but for result q, which holds row q of the transpose. -/
theorem step (κ : GSem nD τ sig → ℕ) (d : Dev nD) (V : Valuation τ sig (Elt F)) (hV : V vx' = xt m d) {Φ : PUnit → sProp 𝕄} :
    iprop((K (F := F)).ctx EH (P m) κ ∗ (K (F := F)).tcSt EH d qK.val ∗ held (SparseCore.T d) (tcRefs τ sig) V
        ∗ (((K (F := F)).tcSt EH d (qK.val + 1) ∗ held (SparseCore.T d) (tcRefs τ sig) ((opC m d).result V)) -∗ Φ ⟨⟩))
      ⊢ wp frame (wpE ((K (F := F)).defs (D (F := F))) 𝒱 (SparseCore.T d) none) Set.univ ((K (F := F)).run d qK) Φ := by
  rw [held_sub_split (SparseCore.T d) pair_sub V, held_pair, hV]
  iintro ⟨#Hctx, Hst, ⟨⟨Hx, Ho⟩, Hrest⟩, Hk⟩
  ihave Hx' := (pointsTo_split_subset (q := fullShare) (f := xt m d) (Finset.subset_univ (Pieces.rowSet qK.val : Finset (Idx (ℓx d))))).1 $$ Hx
  icases Hx' with ⟨Hrow, Hxrest⟩
  iapply ((K (F := F)).wp_run (D (F := F)) 𝒱 (EH := EH) (P := P m) κ d qK) $$ [Hst Hrow Ho Hk Hxrest Hrest]
  isplitr; · iexact Hctx
  isplitl [Hst]; · iexact Hst
  isplitl [Hrow Ho]
  · rw [st_eq]
    isplitl [Hrow]
    · iapply (Entails.of_eq (x_pieces d (xt m d))); iexact Hrow
    · iapply (o_pieces_ex d (V vo')); iexact Ho
  iintro ⟨Hst, Hdn⟩
  ihave Hdn' := (Entails.of_eq (dn_eq m d)) $$ Hdn
  icases Hdn' with ⟨Hrow, Ho⟩
  ihave Hrow' := (Entails.of_eq (x_pieces d (xt m d)).symm) $$ Hrow
  ihave Ho' := (Entails.of_eq (o_pieces_row d (xt m d))) $$ Ho
  ihave Hx := (pointsTo_split_subset (q := fullShare) (f := xt m d) (Finset.subset_univ (Pieces.rowSet qK.val : Finset (Idx (ℓx d))))).2 $$ [Hrow' Hxrest]
  · isplitl [Hrow']; · iexact Hrow'
    iexact Hxrest
  iapply Hk
  isplitl [Hst]; · iexact Hst
  rw [held_sub_split (SparseCore.T d) pair_sub ((opC m d).result V), held_pair,
    StableHlo.nullary_result_ne _ _ _ V (show (main_v0 : Ref sig .tc) ≠ main_v14 by decide), StableHlo.nullary_result, hV,
    held_congr (SparseCore.T d) (V := (opC m d).result V) (V' := V)
      (fun b hb => (opC m d).result_of_not_mem V (fun hw => (Finset.mem_sdiff.mp hb).2
        (Finset.mem_insert_of_mem (Finset.mem_singleton.mpr (Finset.mem_singleton.mp hw)))))]
  isplitl [Hx Ho']
  · isplitl [Hx]; · iexact Hx
    iexact Ho'
  · iexact Hrest

end Cert.Proof.CallB13

end
-- ==== Proof.CallPiecesB14.lean ====
/-
  The pieces of one call: row q of the transposed argument, held at some contents, is the 32 vector subcores' pieces of
  it; result q, held whole at some contents, is their pieces of it.
-/
import proofs.«206869_g37898791420194_cont_8to1_b_558_20_alg».proof.Proof.TileB14Defs
import proofs.«206869_g37898791420194_cont_8to1_b_558_20_alg».proof.Proof.LaunchPieces

noncomputable section

namespace Cert.Proof.CallB14

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic
open Cert.Proof.Pieces (crd)

variable {F : FTy → Type}

abbrev UU : Type := URounds (GSem nD τ sig) ℕ × Counters
local notation "𝕄" => MT nD τ sig (HIx 22) (Elt F) ℕ UU ℕ

/-- The call's number. -/
abbrev qK : Fin 22 := 14
theorem hq : qK.val < 22 := qK.isLt

abbrev vx' : DevRef τ sig := Proc.devRef .tc (main_v0 : Ref sig .tc)
abbrev vo' : DevRef τ sig := Proc.devRef .tc (main_v15 : Ref sig .tc)
abbrev ℓx (d : Dev nD) : Loc nD τ sig := (SparseCore.T d).loc main_v0
abbrev ℓo (d : Dev nD) : Loc nD τ sig := (SparseCore.T d).loc main_v15

variable [FloatOps F]

/-- Row q of the transposed argument, held at contents f, is the tasks' pieces of it. -/
theorem x_pieces (d : Dev nD) (f : Buf (Elt F) (ℓx d)) :
    (ℓx d ↦[(Pieces.rowSet qK.val : Finset (Idx (ℓx d)))]{fullShare} f : sProp 𝕄)
      = bigSep Finset.univ fun c : Fin 2 => bigSep Finset.univ fun s : Fin 16 => bigSep (Finset.range 18) (TileB14.xP d (crd c s) f) := by
  rw [← Pieces.in_cover qK.val hq, pointsTo_biUnion _ _ (Pieces.in_disj qK.val hq), Pieces.bigSep_tris]
  refine bigSep_congr fun c _ => bigSep_congr fun s _ => bigSep_congr fun n _ => ?_
  unfold TileB14.xP
  by_cases h : TileB14.valid (crd c s) n
  · rw [if_pos h, if_pos (show Pieces.pnum (c, s, n) < 500 from (TileB14.valid_iff _ _).mp h)]
    show _ = ((TileB14.inM (crd c s) n).view.loc (TileB14.thr d (crd c s)) ↦[(TileB14.inM (crd c s) n).view.set]{fullShare} f)
    rw [show (TileB14.inM (crd c s) n).view.set = Pieces.inSet qK.val hq (c, s, n) from View.set_slice_whole _ _]
  · rw [if_neg h, if_neg (show ¬ Pieces.pnum (c, s, n) < 500 from fun h' => h ((TileB14.valid_iff _ _).mpr h'))]
    rfl

/-- Result q, held whole at contents g, is the tasks' pieces of it at g. -/
theorem o_pieces (d : Dev nD) (g : Buf (Elt F) (ℓo d)) :
    (ℓo d ↦{fullShare} g : sProp 𝕄)
      = bigSep Finset.univ fun c : Fin 2 => bigSep Finset.univ fun s : Fin 16 => bigSep (Finset.range 18) fun n =>
          if TileB14.valid (crd c s) n then
            ((TileB14.outM (crd c s) n).view.loc (TileB14.thr d (crd c s)) ↦[(TileB14.outM (crd c s) n).view.set]{fullShare} g : sProp 𝕄)
          else iprop(emp) := by
  show (ℓo d ↦[(Finset.univ : Finset (Idx (ℓo d)))]{fullShare} g : sProp 𝕄) = _
  rw [← Pieces.out_cover, pointsTo_biUnion _ _ Pieces.out_disj, Pieces.bigSep_tris]
  refine bigSep_congr fun c _ => bigSep_congr fun s _ => bigSep_congr fun n _ => ?_
  by_cases h : TileB14.valid (crd c s) n
  · rw [if_pos h, if_pos (show Pieces.pnum (c, s, n) < 500 from (TileB14.valid_iff _ _).mp h)]
    rw [show (TileB14.outM (crd c s) n).view.set = Pieces.outSet (c, s, n) from View.set_slice_whole _ _]
  · rw [if_neg h, if_neg (show ¬ Pieces.pnum (c, s, n) < 500 from fun h' => h ((TileB14.valid_iff _ _).mpr h'))]
    rfl

end Cert.Proof.CallB14

end
-- ==== Proof.LaunchStepB14.lean ====
/-
  One call of a copy kernel, run from the TensorCore: from the TensorCore's buffers held at a valuation whose transposed
  argument is the transpose, the call leaves them at the same valuation but for result q, which holds row q.
-/
import proofs.«206869_g37898791420194_cont_8to1_b_558_20_alg».proof.Proof.LaunchPB
import proofs.«206869_g37898791420194_cont_8to1_b_558_20_alg».proof.Proof.CallPiecesB14

noncomputable section

namespace Cert.Proof.CallB14

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic
open Idealize.ShloMosaic.StableHlo (tcRefs devRef_mem_tcRefs held_sub_split held_congr)
open Cert.Proof.Pieces (crd)
open Cert.Proof.LaunchKB (K D 𝒱 𝒱₀ v₀ EH P xt)

variable {F : FTy → Type}

local notation "𝕄" => MT nD τ sig (HIx 22) (Elt F) ℕ UU ℕ

variable (m : (ℓ : Loc nD τ sig) → Buf (Elt F) ℓ)
variable [FloatOps F]

/-- Result q held whole at some contents gives every task its pieces of it, each at some contents. -/
theorem o_pieces_ex (d : Dev nD) (g : Buf (Elt F) (ℓo d)) :
    (ℓo d ↦{fullShare} g : sProp 𝕄)
      ⊢ bigSep Finset.univ fun c : Fin 2 => bigSep Finset.univ fun s : Fin 16 => bigSep (Finset.range 18) (TileB14.oP (F := F) d (crd c s)) := by
  rw [o_pieces d g]
  refine bigSep_mono fun c _ => bigSep_mono fun s _ => bigSep_mono fun n _ => ?_
  unfold TileB14.oP
  by_cases h : TileB14.valid (crd c s) n
  · rw [if_pos h, if_pos h]
    exact exists_intro (Φ := fun f => (((TileB14.outM (crd c s) n).view.loc (TileB14.thr d (crd c s)) ↦[(TileB14.outM (crd c s) n).view.set]{fullShare} f : sProp 𝕄))) g
  · rw [if_neg h, if_neg h]; exact BI.Entails.refl _

/-- The tasks' pieces of result q, each holding row q of f, are result q whole holding that row. -/
theorem o_pieces_row (d : Dev nD) (f : Buf (Elt F) (ℓx d)) :
    (bigSep Finset.univ fun c : Fin 2 => bigSep Finset.univ fun s : Fin 16 => bigSep (Finset.range 18) (TileB14.oQ d (crd c s) f))
      = (ℓo d ↦{fullShare} (Cert.Spec.row qK f : Buf (Elt F) (ℓo d)) : sProp 𝕄) := by
  rw [o_pieces d (Cert.Spec.row qK f : Buf (Elt F) (ℓo d))]
  rfl

omit [FloatOps F] in
/-- A separating conjunction over the call's grid of vector subcores, or of SparseCores, is one over sixteen, or two. -/
theorem bigSep_castSub (Φ : Fin 16 → sProp 𝕄) :
    (bigSep Finset.univ fun i : Fin ((K (F := F)).nSub qK) => Φ (i.cast (LaunchKB.nSub_eq qK))) = bigSep Finset.univ Φ :=
  bigSep_congr fun _ _ => congrArg Φ (Fin.ext rfl)
omit [FloatOps F] in
theorem bigSep_castCore (Φ : Fin 2 → sProp 𝕄) :
    (bigSep Finset.univ fun c : Fin ((K (F := F)).nCore qK) => Φ (c.cast (LaunchKB.nCore_eq qK))) = bigSep Finset.univ Φ :=
  bigSep_congr fun _ _ => congrArg Φ (Fin.ext rfl)

theorem goQ_eq (d : Dev nD) (c : Fin 2) (s : Fin 16) : LaunchKB.goQ m qK d c s = TileB14.goRes d (crd c s) (xt m d) := rfl
theorem tdQ_eq (d : Dev nD) (c : Fin 2) (s : Fin 16) : LaunchKB.tdQ m qK d c s = TileB14.tdRes d (crd c s) (xt m d) := rfl

/-- What the call takes for the two SparseCores: every task's pieces. -/
theorem st_eq (d : Dev nD) :
    (bigSep Finset.univ fun c : Fin ((K (F := F)).nCore qK) => (P m).st qK d c)
      = iprop((bigSep Finset.univ fun c : Fin 2 => bigSep Finset.univ fun s : Fin 16 => bigSep (Finset.range 18) (TileB14.xP d (crd c s) (xt m d)))
          ∗ (bigSep Finset.univ fun c : Fin 2 => bigSep Finset.univ fun s : Fin 16 => bigSep (Finset.range 18) (TileB14.oP (F := F) d (crd c s)))) := by
  have h1 : (bigSep Finset.univ fun c : Fin ((K (F := F)).nCore qK) => (P m).st qK d c)
      = bigSep Finset.univ fun c : Fin ((K (F := F)).nCore qK) =>
          (fun c' : Fin 2 => bigSep (Finset.univ : Finset (Fin 16)) fun s => LaunchKB.goQ m qK d c' s) (c.cast (LaunchKB.nCore_eq qK)) :=
    bigSep_congr fun c _ => bigSep_castSub (fun s => LaunchKB.goQ m qK d (c.cast (LaunchKB.nCore_eq qK)) s)
  rw [h1, bigSep_castCore (fun c' : Fin 2 => bigSep (Finset.univ : Finset (Fin 16)) fun s => LaunchKB.goQ m qK d c' s), ← bigSep_sep']
  refine bigSep_congr fun c _ => ?_
  rw [← bigSep_sep']
  refine bigSep_congr fun s _ => ?_
  rw [goQ_eq]; rfl

/-- What it hands back. -/
theorem dn_eq (d : Dev nD) :
    (bigSep Finset.univ fun c : Fin ((K (F := F)).nCore qK) => (P m).dn qK d c)
      = iprop((bigSep Finset.univ fun c : Fin 2 => bigSep Finset.univ fun s : Fin 16 => bigSep (Finset.range 18) (TileB14.xP d (crd c s) (xt m d)))
          ∗ (bigSep Finset.univ fun c : Fin 2 => bigSep Finset.univ fun s : Fin 16 => bigSep (Finset.range 18) (TileB14.oQ d (crd c s) (xt m d)))) := by
  have h1 : (bigSep Finset.univ fun c : Fin ((K (F := F)).nCore qK) => (P m).dn qK d c)
      = bigSep Finset.univ fun c : Fin ((K (F := F)).nCore qK) =>
          (fun c' : Fin 2 => bigSep (Finset.univ : Finset (Fin 16)) fun s => LaunchKB.tdQ m qK d c' s) (c.cast (LaunchKB.nCore_eq qK)) :=
    bigSep_congr fun c _ => bigSep_castSub (fun s => LaunchKB.tdQ m qK d (c.cast (LaunchKB.nCore_eq qK)) s)
  rw [h1, bigSep_castCore (fun c' : Fin 2 => bigSep (Finset.univ : Finset (Fin 16)) fun s => LaunchKB.tdQ m qK d c' s), ← bigSep_sep']
  refine bigSep_congr fun c _ => ?_
  rw [← bigSep_sep']
  refine bigSep_congr fun s _ => ?_
  rw [tdQ_eq]; rfl

omit [FloatOps F] in
theorem pair_sub : ({vx', vo'} : Finset (DevRef τ sig)) ⊆ tcRefs τ sig :=
  Finset.insert_subset (devRef_mem_tcRefs _) (Finset.singleton_subset_iff.mpr (devRef_mem_tcRefs _))

omit [FloatOps F] in
theorem held_pair (d : Dev nD) (V : Valuation τ sig (Elt F)) :
    (held (SparseCore.T d) ({vx', vo'} : Finset (DevRef τ sig)) V : sProp 𝕄) = iprop((ℓx d ↦{fullShare} V vx') ∗ (ℓo d ↦{fullShare} V vo')) := by
  unfold held; rw [SparseCore.bigSep_insert' (by decide), bigSep_singleton]

/-- What the call does to the TensorCore's buffers, as an operation on valuations: result q takes row q of the transpose. -/
abbrev opC (d : Dev nD) : HloOp τ sig (Elt F) := StableHlo.nullary main_v15 (Cert.Spec.row qK (xt m d))

/-- The call, from the TensorCore's buffers held at a valuation V whose transposed argument is the transpose: it
    leaves them at V but for result q, which holds row q of the transpose. -/
theorem step (κ : GSem nD τ sig → ℕ) (d : Dev nD) (V : Valuation τ sig (Elt F)) (hV : V vx' = xt m d) {Φ : PUnit → sProp 𝕄} :
    iprop((K (F := F)).ctx EH (P m) κ ∗ (K (F := F)).tcSt EH d qK.val ∗ held (SparseCore.T d) (tcRefs τ sig) V
        ∗ (((K (F := F)).tcSt EH d (qK.val + 1) ∗ held (SparseCore.T d) (tcRefs τ sig) ((opC m d).result V)) -∗ Φ ⟨⟩))
      ⊢ wp frame (wpE ((K (F := F)).defs (D (F := F))) 𝒱 (SparseCore.T d) none) Set.univ ((K (F := F)).run d qK) Φ := by
  rw [held_sub_split (SparseCore.T d) pair_sub V, held_pair, hV]
  iintro ⟨#Hctx, Hst, ⟨⟨Hx, Ho⟩, Hrest⟩, Hk⟩
  ihave Hx' := (pointsTo_split_subset (q := fullShare) (f := xt m d) (Finset.subset_univ (Pieces.rowSet qK.val : Finset (Idx (ℓx d))))).1 $$ Hx
  icases Hx' with ⟨Hrow, Hxrest⟩
  iapply ((K (F := F)).wp_run (D (F := F)) 𝒱 (EH := EH) (P := P m) κ d qK) $$ [Hst Hrow Ho Hk Hxrest Hrest]
  isplitr; · iexact Hctx
  isplitl [Hst]; · iexact Hst
  isplitl [Hrow Ho]
  · rw [st_eq]
    isplitl [Hrow]
    · iapply (Entails.of_eq (x_pieces d (xt m d))); iexact Hrow
    · iapply (o_pieces_ex d (V vo')); iexact Ho
  iintro ⟨Hst, Hdn⟩
  ihave Hdn' := (Entails.of_eq (dn_eq m d)) $$ Hdn
  icases Hdn' with ⟨Hrow, Ho⟩
  ihave Hrow' := (Entails.of_eq (x_pieces d (xt m d)).symm) $$ Hrow
  ihave Ho' := (Entails.of_eq (o_pieces_row d (xt m d))) $$ Ho
  ihave Hx := (pointsTo_split_subset (q := fullShare) (f := xt m d) (Finset.subset_univ (Pieces.rowSet qK.val : Finset (Idx (ℓx d))))).2 $$ [Hrow' Hxrest]
  · isplitl [Hrow']; · iexact Hrow'
    iexact Hxrest
  iapply Hk
  isplitl [Hst]; · iexact Hst
  rw [held_sub_split (SparseCore.T d) pair_sub ((opC m d).result V), held_pair,
    StableHlo.nullary_result_ne _ _ _ V (show (main_v0 : Ref sig .tc) ≠ main_v15 by decide), StableHlo.nullary_result, hV,
    held_congr (SparseCore.T d) (V := (opC m d).result V) (V' := V)
      (fun b hb => (opC m d).result_of_not_mem V (fun hw => (Finset.mem_sdiff.mp hb).2
        (Finset.mem_insert_of_mem (Finset.mem_singleton.mpr (Finset.mem_singleton.mp hw)))))]
  isplitl [Hx Ho']
  · isplitl [Hx]; · iexact Hx
    iexact Ho'
  · iexact Hrest

end Cert.Proof.CallB14

end
-- ==== Proof.CallPiecesB15.lean ====
/-
  The pieces of one call: row q of the transposed argument, held at some contents, is the 32 vector subcores' pieces of
  it; result q, held whole at some contents, is their pieces of it.
-/
import proofs.«206869_g37898791420194_cont_8to1_b_558_20_alg».proof.Proof.TileB15Defs
import proofs.«206869_g37898791420194_cont_8to1_b_558_20_alg».proof.Proof.LaunchPieces

noncomputable section

namespace Cert.Proof.CallB15

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic
open Cert.Proof.Pieces (crd)

variable {F : FTy → Type}

abbrev UU : Type := URounds (GSem nD τ sig) ℕ × Counters
local notation "𝕄" => MT nD τ sig (HIx 22) (Elt F) ℕ UU ℕ

/-- The call's number. -/
abbrev qK : Fin 22 := 15
theorem hq : qK.val < 22 := qK.isLt

abbrev vx' : DevRef τ sig := Proc.devRef .tc (main_v0 : Ref sig .tc)
abbrev vo' : DevRef τ sig := Proc.devRef .tc (main_v16 : Ref sig .tc)
abbrev ℓx (d : Dev nD) : Loc nD τ sig := (SparseCore.T d).loc main_v0
abbrev ℓo (d : Dev nD) : Loc nD τ sig := (SparseCore.T d).loc main_v16

variable [FloatOps F]

/-- Row q of the transposed argument, held at contents f, is the tasks' pieces of it. -/
theorem x_pieces (d : Dev nD) (f : Buf (Elt F) (ℓx d)) :
    (ℓx d ↦[(Pieces.rowSet qK.val : Finset (Idx (ℓx d)))]{fullShare} f : sProp 𝕄)
      = bigSep Finset.univ fun c : Fin 2 => bigSep Finset.univ fun s : Fin 16 => bigSep (Finset.range 18) (TileB15.xP d (crd c s) f) := by
  rw [← Pieces.in_cover qK.val hq, pointsTo_biUnion _ _ (Pieces.in_disj qK.val hq), Pieces.bigSep_tris]
  refine bigSep_congr fun c _ => bigSep_congr fun s _ => bigSep_congr fun n _ => ?_
  unfold TileB15.xP
  by_cases h : TileB15.valid (crd c s) n
  · rw [if_pos h, if_pos (show Pieces.pnum (c, s, n) < 500 from (TileB15.valid_iff _ _).mp h)]
    show _ = ((TileB15.inM (crd c s) n).view.loc (TileB15.thr d (crd c s)) ↦[(TileB15.inM (crd c s) n).view.set]{fullShare} f)
    rw [show (TileB15.inM (crd c s) n).view.set = Pieces.inSet qK.val hq (c, s, n) from View.set_slice_whole _ _]
  · rw [if_neg h, if_neg (show ¬ Pieces.pnum (c, s, n) < 500 from fun h' => h ((TileB15.valid_iff _ _).mpr h'))]
    rfl

/-- Result q, held whole at contents g, is the tasks' pieces of it at g. -/
theorem o_pieces (d : Dev nD) (g : Buf (Elt F) (ℓo d)) :
    (ℓo d ↦{fullShare} g : sProp 𝕄)
      = bigSep Finset.univ fun c : Fin 2 => bigSep Finset.univ fun s : Fin 16 => bigSep (Finset.range 18) fun n =>
          if TileB15.valid (crd c s) n then
            ((TileB15.outM (crd c s) n).view.loc (TileB15.thr d (crd c s)) ↦[(TileB15.outM (crd c s) n).view.set]{fullShare} g : sProp 𝕄)
          else iprop(emp) := by
  show (ℓo d ↦[(Finset.univ : Finset (Idx (ℓo d)))]{fullShare} g : sProp 𝕄) = _
  rw [← Pieces.out_cover, pointsTo_biUnion _ _ Pieces.out_disj, Pieces.bigSep_tris]
  refine bigSep_congr fun c _ => bigSep_congr fun s _ => bigSep_congr fun n _ => ?_
  by_cases h : TileB15.valid (crd c s) n
  · rw [if_pos h, if_pos (show Pieces.pnum (c, s, n) < 500 from (TileB15.valid_iff _ _).mp h)]
    rw [show (TileB15.outM (crd c s) n).view.set = Pieces.outSet (c, s, n) from View.set_slice_whole _ _]
  · rw [if_neg h, if_neg (show ¬ Pieces.pnum (c, s, n) < 500 from fun h' => h ((TileB15.valid_iff _ _).mpr h'))]
    rfl

end Cert.Proof.CallB15

end
-- ==== Proof.LaunchStepB15.lean ====
/-
  One call of a copy kernel, run from the TensorCore: from the TensorCore's buffers held at a valuation whose transposed
  argument is the transpose, the call leaves them at the same valuation but for result q, which holds row q.
-/
import proofs.«206869_g37898791420194_cont_8to1_b_558_20_alg».proof.Proof.LaunchPB
import proofs.«206869_g37898791420194_cont_8to1_b_558_20_alg».proof.Proof.CallPiecesB15

noncomputable section

namespace Cert.Proof.CallB15

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic
open Idealize.ShloMosaic.StableHlo (tcRefs devRef_mem_tcRefs held_sub_split held_congr)
open Cert.Proof.Pieces (crd)
open Cert.Proof.LaunchKB (K D 𝒱 𝒱₀ v₀ EH P xt)

variable {F : FTy → Type}

local notation "𝕄" => MT nD τ sig (HIx 22) (Elt F) ℕ UU ℕ

variable (m : (ℓ : Loc nD τ sig) → Buf (Elt F) ℓ)
variable [FloatOps F]

/-- Result q held whole at some contents gives every task its pieces of it, each at some contents. -/
theorem o_pieces_ex (d : Dev nD) (g : Buf (Elt F) (ℓo d)) :
    (ℓo d ↦{fullShare} g : sProp 𝕄)
      ⊢ bigSep Finset.univ fun c : Fin 2 => bigSep Finset.univ fun s : Fin 16 => bigSep (Finset.range 18) (TileB15.oP (F := F) d (crd c s)) := by
  rw [o_pieces d g]
  refine bigSep_mono fun c _ => bigSep_mono fun s _ => bigSep_mono fun n _ => ?_
  unfold TileB15.oP
  by_cases h : TileB15.valid (crd c s) n
  · rw [if_pos h, if_pos h]
    exact exists_intro (Φ := fun f => (((TileB15.outM (crd c s) n).view.loc (TileB15.thr d (crd c s)) ↦[(TileB15.outM (crd c s) n).view.set]{fullShare} f : sProp 𝕄))) g
  · rw [if_neg h, if_neg h]; exact BI.Entails.refl _

/-- The tasks' pieces of result q, each holding row q of f, are result q whole holding that row. -/
theorem o_pieces_row (d : Dev nD) (f : Buf (Elt F) (ℓx d)) :
    (bigSep Finset.univ fun c : Fin 2 => bigSep Finset.univ fun s : Fin 16 => bigSep (Finset.range 18) (TileB15.oQ d (crd c s) f))
      = (ℓo d ↦{fullShare} (Cert.Spec.row qK f : Buf (Elt F) (ℓo d)) : sProp 𝕄) := by
  rw [o_pieces d (Cert.Spec.row qK f : Buf (Elt F) (ℓo d))]
  rfl

omit [FloatOps F] in
/-- A separating conjunction over the call's grid of vector subcores, or of SparseCores, is one over sixteen, or two. -/
theorem bigSep_castSub (Φ : Fin 16 → sProp 𝕄) :
    (bigSep Finset.univ fun i : Fin ((K (F := F)).nSub qK) => Φ (i.cast (LaunchKB.nSub_eq qK))) = bigSep Finset.univ Φ :=
  bigSep_congr fun _ _ => congrArg Φ (Fin.ext rfl)
omit [FloatOps F] in
theorem bigSep_castCore (Φ : Fin 2 → sProp 𝕄) :
    (bigSep Finset.univ fun c : Fin ((K (F := F)).nCore qK) => Φ (c.cast (LaunchKB.nCore_eq qK))) = bigSep Finset.univ Φ :=
  bigSep_congr fun _ _ => congrArg Φ (Fin.ext rfl)

theorem goQ_eq (d : Dev nD) (c : Fin 2) (s : Fin 16) : LaunchKB.goQ m qK d c s = TileB15.goRes d (crd c s) (xt m d) := rfl
theorem tdQ_eq (d : Dev nD) (c : Fin 2) (s : Fin 16) : LaunchKB.tdQ m qK d c s = TileB15.tdRes d (crd c s) (xt m d) := rfl

/-- What the call takes for the two SparseCores: every task's pieces. -/
theorem st_eq (d : Dev nD) :
    (bigSep Finset.univ fun c : Fin ((K (F := F)).nCore qK) => (P m).st qK d c)
      = iprop((bigSep Finset.univ fun c : Fin 2 => bigSep Finset.univ fun s : Fin 16 => bigSep (Finset.range 18) (TileB15.xP d (crd c s) (xt m d)))
          ∗ (bigSep Finset.univ fun c : Fin 2 => bigSep Finset.univ fun s : Fin 16 => bigSep (Finset.range 18) (TileB15.oP (F := F) d (crd c s)))) := by
  have h1 : (bigSep Finset.univ fun c : Fin ((K (F := F)).nCore qK) => (P m).st qK d c)
      = bigSep Finset.univ fun c : Fin ((K (F := F)).nCore qK) =>
          (fun c' : Fin 2 => bigSep (Finset.univ : Finset (Fin 16)) fun s => LaunchKB.goQ m qK d c' s) (c.cast (LaunchKB.nCore_eq qK)) :=
    bigSep_congr fun c _ => bigSep_castSub (fun s => LaunchKB.goQ m qK d (c.cast (LaunchKB.nCore_eq qK)) s)
  rw [h1, bigSep_castCore (fun c' : Fin 2 => bigSep (Finset.univ : Finset (Fin 16)) fun s => LaunchKB.goQ m qK d c' s), ← bigSep_sep']
  refine bigSep_congr fun c _ => ?_
  rw [← bigSep_sep']
  refine bigSep_congr fun s _ => ?_
  rw [goQ_eq]; rfl

/-- What it hands back. -/
theorem dn_eq (d : Dev nD) :
    (bigSep Finset.univ fun c : Fin ((K (F := F)).nCore qK) => (P m).dn qK d c)
      = iprop((bigSep Finset.univ fun c : Fin 2 => bigSep Finset.univ fun s : Fin 16 => bigSep (Finset.range 18) (TileB15.xP d (crd c s) (xt m d)))
          ∗ (bigSep Finset.univ fun c : Fin 2 => bigSep Finset.univ fun s : Fin 16 => bigSep (Finset.range 18) (TileB15.oQ d (crd c s) (xt m d)))) := by
  have h1 : (bigSep Finset.univ fun c : Fin ((K (F := F)).nCore qK) => (P m).dn qK d c)
      = bigSep Finset.univ fun c : Fin ((K (F := F)).nCore qK) =>
          (fun c' : Fin 2 => bigSep (Finset.univ : Finset (Fin 16)) fun s => LaunchKB.tdQ m qK d c' s) (c.cast (LaunchKB.nCore_eq qK)) :=
    bigSep_congr fun c _ => bigSep_castSub (fun s => LaunchKB.tdQ m qK d (c.cast (LaunchKB.nCore_eq qK)) s)
  rw [h1, bigSep_castCore (fun c' : Fin 2 => bigSep (Finset.univ : Finset (Fin 16)) fun s => LaunchKB.tdQ m qK d c' s), ← bigSep_sep']
  refine bigSep_congr fun c _ => ?_
  rw [← bigSep_sep']
  refine bigSep_congr fun s _ => ?_
  rw [tdQ_eq]; rfl

omit [FloatOps F] in
theorem pair_sub : ({vx', vo'} : Finset (DevRef τ sig)) ⊆ tcRefs τ sig :=
  Finset.insert_subset (devRef_mem_tcRefs _) (Finset.singleton_subset_iff.mpr (devRef_mem_tcRefs _))

omit [FloatOps F] in
theorem held_pair (d : Dev nD) (V : Valuation τ sig (Elt F)) :
    (held (SparseCore.T d) ({vx', vo'} : Finset (DevRef τ sig)) V : sProp 𝕄) = iprop((ℓx d ↦{fullShare} V vx') ∗ (ℓo d ↦{fullShare} V vo')) := by
  unfold held; rw [SparseCore.bigSep_insert' (by decide), bigSep_singleton]

/-- What the call does to the TensorCore's buffers, as an operation on valuations: result q takes row q of the transpose. -/
abbrev opC (d : Dev nD) : HloOp τ sig (Elt F) := StableHlo.nullary main_v16 (Cert.Spec.row qK (xt m d))

/-- The call, from the TensorCore's buffers held at a valuation V whose transposed argument is the transpose: it
    leaves them at V but for result q, which holds row q of the transpose. -/
theorem step (κ : GSem nD τ sig → ℕ) (d : Dev nD) (V : Valuation τ sig (Elt F)) (hV : V vx' = xt m d) {Φ : PUnit → sProp 𝕄} :
    iprop((K (F := F)).ctx EH (P m) κ ∗ (K (F := F)).tcSt EH d qK.val ∗ held (SparseCore.T d) (tcRefs τ sig) V
        ∗ (((K (F := F)).tcSt EH d (qK.val + 1) ∗ held (SparseCore.T d) (tcRefs τ sig) ((opC m d).result V)) -∗ Φ ⟨⟩))
      ⊢ wp frame (wpE ((K (F := F)).defs (D (F := F))) 𝒱 (SparseCore.T d) none) Set.univ ((K (F := F)).run d qK) Φ := by
  rw [held_sub_split (SparseCore.T d) pair_sub V, held_pair, hV]
  iintro ⟨#Hctx, Hst, ⟨⟨Hx, Ho⟩, Hrest⟩, Hk⟩
  ihave Hx' := (pointsTo_split_subset (q := fullShare) (f := xt m d) (Finset.subset_univ (Pieces.rowSet qK.val : Finset (Idx (ℓx d))))).1 $$ Hx
  icases Hx' with ⟨Hrow, Hxrest⟩
  iapply ((K (F := F)).wp_run (D (F := F)) 𝒱 (EH := EH) (P := P m) κ d qK) $$ [Hst Hrow Ho Hk Hxrest Hrest]
  isplitr; · iexact Hctx
  isplitl [Hst]; · iexact Hst
  isplitl [Hrow Ho]
  · rw [st_eq]
    isplitl [Hrow]
    · iapply (Entails.of_eq (x_pieces d (xt m d))); iexact Hrow
    · iapply (o_pieces_ex d (V vo')); iexact Ho
  iintro ⟨Hst, Hdn⟩
  ihave Hdn' := (Entails.of_eq (dn_eq m d)) $$ Hdn
  icases Hdn' with ⟨Hrow, Ho⟩
  ihave Hrow' := (Entails.of_eq (x_pieces d (xt m d)).symm) $$ Hrow
  ihave Ho' := (Entails.of_eq (o_pieces_row d (xt m d))) $$ Ho
  ihave Hx := (pointsTo_split_subset (q := fullShare) (f := xt m d) (Finset.subset_univ (Pieces.rowSet qK.val : Finset (Idx (ℓx d))))).2 $$ [Hrow' Hxrest]
  · isplitl [Hrow']; · iexact Hrow'
    iexact Hxrest
  iapply Hk
  isplitl [Hst]; · iexact Hst
  rw [held_sub_split (SparseCore.T d) pair_sub ((opC m d).result V), held_pair,
    StableHlo.nullary_result_ne _ _ _ V (show (main_v0 : Ref sig .tc) ≠ main_v16 by decide), StableHlo.nullary_result, hV,
    held_congr (SparseCore.T d) (V := (opC m d).result V) (V' := V)
      (fun b hb => (opC m d).result_of_not_mem V (fun hw => (Finset.mem_sdiff.mp hb).2
        (Finset.mem_insert_of_mem (Finset.mem_singleton.mpr (Finset.mem_singleton.mp hw)))))]
  isplitl [Hx Ho']
  · isplitl [Hx]; · iexact Hx
    iexact Ho'
  · iexact Hrest

end Cert.Proof.CallB15

end
-- ==== Proof.CallPiecesB16.lean ====
/-
  The pieces of one call: row q of the transposed argument, held at some contents, is the 32 vector subcores' pieces of
  it; result q, held whole at some contents, is their pieces of it.
-/
import proofs.«206869_g37898791420194_cont_8to1_b_558_20_alg».proof.Proof.TileB16Defs
import proofs.«206869_g37898791420194_cont_8to1_b_558_20_alg».proof.Proof.LaunchPieces

noncomputable section

namespace Cert.Proof.CallB16

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic
open Cert.Proof.Pieces (crd)

variable {F : FTy → Type}

abbrev UU : Type := URounds (GSem nD τ sig) ℕ × Counters
local notation "𝕄" => MT nD τ sig (HIx 22) (Elt F) ℕ UU ℕ

/-- The call's number. -/
abbrev qK : Fin 22 := 16
theorem hq : qK.val < 22 := qK.isLt

abbrev vx' : DevRef τ sig := Proc.devRef .tc (main_v0 : Ref sig .tc)
abbrev vo' : DevRef τ sig := Proc.devRef .tc (main_v17 : Ref sig .tc)
abbrev ℓx (d : Dev nD) : Loc nD τ sig := (SparseCore.T d).loc main_v0
abbrev ℓo (d : Dev nD) : Loc nD τ sig := (SparseCore.T d).loc main_v17

variable [FloatOps F]

/-- Row q of the transposed argument, held at contents f, is the tasks' pieces of it. -/
theorem x_pieces (d : Dev nD) (f : Buf (Elt F) (ℓx d)) :
    (ℓx d ↦[(Pieces.rowSet qK.val : Finset (Idx (ℓx d)))]{fullShare} f : sProp 𝕄)
      = bigSep Finset.univ fun c : Fin 2 => bigSep Finset.univ fun s : Fin 16 => bigSep (Finset.range 18) (TileB16.xP d (crd c s) f) := by
  rw [← Pieces.in_cover qK.val hq, pointsTo_biUnion _ _ (Pieces.in_disj qK.val hq), Pieces.bigSep_tris]
  refine bigSep_congr fun c _ => bigSep_congr fun s _ => bigSep_congr fun n _ => ?_
  unfold TileB16.xP
  by_cases h : TileB16.valid (crd c s) n
  · rw [if_pos h, if_pos (show Pieces.pnum (c, s, n) < 500 from (TileB16.valid_iff _ _).mp h)]
    show _ = ((TileB16.inM (crd c s) n).view.loc (TileB16.thr d (crd c s)) ↦[(TileB16.inM (crd c s) n).view.set]{fullShare} f)
    rw [show (TileB16.inM (crd c s) n).view.set = Pieces.inSet qK.val hq (c, s, n) from View.set_slice_whole _ _]
  · rw [if_neg h, if_neg (show ¬ Pieces.pnum (c, s, n) < 500 from fun h' => h ((TileB16.valid_iff _ _).mpr h'))]
    rfl

/-- Result q, held whole at contents g, is the tasks' pieces of it at g. -/
theorem o_pieces (d : Dev nD) (g : Buf (Elt F) (ℓo d)) :
    (ℓo d ↦{fullShare} g : sProp 𝕄)
      = bigSep Finset.univ fun c : Fin 2 => bigSep Finset.univ fun s : Fin 16 => bigSep (Finset.range 18) fun n =>
          if TileB16.valid (crd c s) n then
            ((TileB16.outM (crd c s) n).view.loc (TileB16.thr d (crd c s)) ↦[(TileB16.outM (crd c s) n).view.set]{fullShare} g : sProp 𝕄)
          else iprop(emp) := by
  show (ℓo d ↦[(Finset.univ : Finset (Idx (ℓo d)))]{fullShare} g : sProp 𝕄) = _
  rw [← Pieces.out_cover, pointsTo_biUnion _ _ Pieces.out_disj, Pieces.bigSep_tris]
  refine bigSep_congr fun c _ => bigSep_congr fun s _ => bigSep_congr fun n _ => ?_
  by_cases h : TileB16.valid (crd c s) n
  · rw [if_pos h, if_pos (show Pieces.pnum (c, s, n) < 500 from (TileB16.valid_iff _ _).mp h)]
    rw [show (TileB16.outM (crd c s) n).view.set = Pieces.outSet (c, s, n) from View.set_slice_whole _ _]
  · rw [if_neg h, if_neg (show ¬ Pieces.pnum (c, s, n) < 500 from fun h' => h ((TileB16.valid_iff _ _).mpr h'))]
    rfl

end Cert.Proof.CallB16

end
-- ==== Proof.LaunchStepB16.lean ====
/-
  One call of a copy kernel, run from the TensorCore: from the TensorCore's buffers held at a valuation whose transposed
  argument is the transpose, the call leaves them at the same valuation but for result q, which holds row q.
-/
import proofs.«206869_g37898791420194_cont_8to1_b_558_20_alg».proof.Proof.LaunchPB
import proofs.«206869_g37898791420194_cont_8to1_b_558_20_alg».proof.Proof.CallPiecesB16

noncomputable section

namespace Cert.Proof.CallB16

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic
open Idealize.ShloMosaic.StableHlo (tcRefs devRef_mem_tcRefs held_sub_split held_congr)
open Cert.Proof.Pieces (crd)
open Cert.Proof.LaunchKB (K D 𝒱 𝒱₀ v₀ EH P xt)

variable {F : FTy → Type}

local notation "𝕄" => MT nD τ sig (HIx 22) (Elt F) ℕ UU ℕ

variable (m : (ℓ : Loc nD τ sig) → Buf (Elt F) ℓ)
variable [FloatOps F]

/-- Result q held whole at some contents gives every task its pieces of it, each at some contents. -/
theorem o_pieces_ex (d : Dev nD) (g : Buf (Elt F) (ℓo d)) :
    (ℓo d ↦{fullShare} g : sProp 𝕄)
      ⊢ bigSep Finset.univ fun c : Fin 2 => bigSep Finset.univ fun s : Fin 16 => bigSep (Finset.range 18) (TileB16.oP (F := F) d (crd c s)) := by
  rw [o_pieces d g]
  refine bigSep_mono fun c _ => bigSep_mono fun s _ => bigSep_mono fun n _ => ?_
  unfold TileB16.oP
  by_cases h : TileB16.valid (crd c s) n
  · rw [if_pos h, if_pos h]
    exact exists_intro (Φ := fun f => (((TileB16.outM (crd c s) n).view.loc (TileB16.thr d (crd c s)) ↦[(TileB16.outM (crd c s) n).view.set]{fullShare} f : sProp 𝕄))) g
  · rw [if_neg h, if_neg h]; exact BI.Entails.refl _

/-- The tasks' pieces of result q, each holding row q of f, are result q whole holding that row. -/
theorem o_pieces_row (d : Dev nD) (f : Buf (Elt F) (ℓx d)) :
    (bigSep Finset.univ fun c : Fin 2 => bigSep Finset.univ fun s : Fin 16 => bigSep (Finset.range 18) (TileB16.oQ d (crd c s) f))
      = (ℓo d ↦{fullShare} (Cert.Spec.row qK f : Buf (Elt F) (ℓo d)) : sProp 𝕄) := by
  rw [o_pieces d (Cert.Spec.row qK f : Buf (Elt F) (ℓo d))]
  rfl

omit [FloatOps F] in
/-- A separating conjunction over the call's grid of vector subcores, or of SparseCores, is one over sixteen, or two. -/
theorem bigSep_castSub (Φ : Fin 16 → sProp 𝕄) :
    (bigSep Finset.univ fun i : Fin ((K (F := F)).nSub qK) => Φ (i.cast (LaunchKB.nSub_eq qK))) = bigSep Finset.univ Φ :=
  bigSep_congr fun _ _ => congrArg Φ (Fin.ext rfl)
omit [FloatOps F] in
theorem bigSep_castCore (Φ : Fin 2 → sProp 𝕄) :
    (bigSep Finset.univ fun c : Fin ((K (F := F)).nCore qK) => Φ (c.cast (LaunchKB.nCore_eq qK))) = bigSep Finset.univ Φ :=
  bigSep_congr fun _ _ => congrArg Φ (Fin.ext rfl)

theorem goQ_eq (d : Dev nD) (c : Fin 2) (s : Fin 16) : LaunchKB.goQ m qK d c s = TileB16.goRes d (crd c s) (xt m d) := rfl
theorem tdQ_eq (d : Dev nD) (c : Fin 2) (s : Fin 16) : LaunchKB.tdQ m qK d c s = TileB16.tdRes d (crd c s) (xt m d) := rfl

/-- What the call takes for the two SparseCores: every task's pieces. -/
theorem st_eq (d : Dev nD) :
    (bigSep Finset.univ fun c : Fin ((K (F := F)).nCore qK) => (P m).st qK d c)
      = iprop((bigSep Finset.univ fun c : Fin 2 => bigSep Finset.univ fun s : Fin 16 => bigSep (Finset.range 18) (TileB16.xP d (crd c s) (xt m d)))
          ∗ (bigSep Finset.univ fun c : Fin 2 => bigSep Finset.univ fun s : Fin 16 => bigSep (Finset.range 18) (TileB16.oP (F := F) d (crd c s)))) := by
  have h1 : (bigSep Finset.univ fun c : Fin ((K (F := F)).nCore qK) => (P m).st qK d c)
      = bigSep Finset.univ fun c : Fin ((K (F := F)).nCore qK) =>
          (fun c' : Fin 2 => bigSep (Finset.univ : Finset (Fin 16)) fun s => LaunchKB.goQ m qK d c' s) (c.cast (LaunchKB.nCore_eq qK)) :=
    bigSep_congr fun c _ => bigSep_castSub (fun s => LaunchKB.goQ m qK d (c.cast (LaunchKB.nCore_eq qK)) s)
  rw [h1, bigSep_castCore (fun c' : Fin 2 => bigSep (Finset.univ : Finset (Fin 16)) fun s => LaunchKB.goQ m qK d c' s), ← bigSep_sep']
  refine bigSep_congr fun c _ => ?_
  rw [← bigSep_sep']
  refine bigSep_congr fun s _ => ?_
  rw [goQ_eq]; rfl

/-- What it hands back. -/
theorem dn_eq (d : Dev nD) :
    (bigSep Finset.univ fun c : Fin ((K (F := F)).nCore qK) => (P m).dn qK d c)
      = iprop((bigSep Finset.univ fun c : Fin 2 => bigSep Finset.univ fun s : Fin 16 => bigSep (Finset.range 18) (TileB16.xP d (crd c s) (xt m d)))
          ∗ (bigSep Finset.univ fun c : Fin 2 => bigSep Finset.univ fun s : Fin 16 => bigSep (Finset.range 18) (TileB16.oQ d (crd c s) (xt m d)))) := by
  have h1 : (bigSep Finset.univ fun c : Fin ((K (F := F)).nCore qK) => (P m).dn qK d c)
      = bigSep Finset.univ fun c : Fin ((K (F := F)).nCore qK) =>
          (fun c' : Fin 2 => bigSep (Finset.univ : Finset (Fin 16)) fun s => LaunchKB.tdQ m qK d c' s) (c.cast (LaunchKB.nCore_eq qK)) :=
    bigSep_congr fun c _ => bigSep_castSub (fun s => LaunchKB.tdQ m qK d (c.cast (LaunchKB.nCore_eq qK)) s)
  rw [h1, bigSep_castCore (fun c' : Fin 2 => bigSep (Finset.univ : Finset (Fin 16)) fun s => LaunchKB.tdQ m qK d c' s), ← bigSep_sep']
  refine bigSep_congr fun c _ => ?_
  rw [← bigSep_sep']
  refine bigSep_congr fun s _ => ?_
  rw [tdQ_eq]; rfl

omit [FloatOps F] in
theorem pair_sub : ({vx', vo'} : Finset (DevRef τ sig)) ⊆ tcRefs τ sig :=
  Finset.insert_subset (devRef_mem_tcRefs _) (Finset.singleton_subset_iff.mpr (devRef_mem_tcRefs _))

omit [FloatOps F] in
theorem held_pair (d : Dev nD) (V : Valuation τ sig (Elt F)) :
    (held (SparseCore.T d) ({vx', vo'} : Finset (DevRef τ sig)) V : sProp 𝕄) = iprop((ℓx d ↦{fullShare} V vx') ∗ (ℓo d ↦{fullShare} V vo')) := by
  unfold held; rw [SparseCore.bigSep_insert' (by decide), bigSep_singleton]

/-- What the call does to the TensorCore's buffers, as an operation on valuations: result q takes row q of the transpose. -/
abbrev opC (d : Dev nD) : HloOp τ sig (Elt F) := StableHlo.nullary main_v17 (Cert.Spec.row qK (xt m d))

/-- The call, from the TensorCore's buffers held at a valuation V whose transposed argument is the transpose: it
    leaves them at V but for result q, which holds row q of the transpose. -/
theorem step (κ : GSem nD τ sig → ℕ) (d : Dev nD) (V : Valuation τ sig (Elt F)) (hV : V vx' = xt m d) {Φ : PUnit → sProp 𝕄} :
    iprop((K (F := F)).ctx EH (P m) κ ∗ (K (F := F)).tcSt EH d qK.val ∗ held (SparseCore.T d) (tcRefs τ sig) V
        ∗ (((K (F := F)).tcSt EH d (qK.val + 1) ∗ held (SparseCore.T d) (tcRefs τ sig) ((opC m d).result V)) -∗ Φ ⟨⟩))
      ⊢ wp frame (wpE ((K (F := F)).defs (D (F := F))) 𝒱 (SparseCore.T d) none) Set.univ ((K (F := F)).run d qK) Φ := by
  rw [held_sub_split (SparseCore.T d) pair_sub V, held_pair, hV]
  iintro ⟨#Hctx, Hst, ⟨⟨Hx, Ho⟩, Hrest⟩, Hk⟩
  ihave Hx' := (pointsTo_split_subset (q := fullShare) (f := xt m d) (Finset.subset_univ (Pieces.rowSet qK.val : Finset (Idx (ℓx d))))).1 $$ Hx
  icases Hx' with ⟨Hrow, Hxrest⟩
  iapply ((K (F := F)).wp_run (D (F := F)) 𝒱 (EH := EH) (P := P m) κ d qK) $$ [Hst Hrow Ho Hk Hxrest Hrest]
  isplitr; · iexact Hctx
  isplitl [Hst]; · iexact Hst
  isplitl [Hrow Ho]
  · rw [st_eq]
    isplitl [Hrow]
    · iapply (Entails.of_eq (x_pieces d (xt m d))); iexact Hrow
    · iapply (o_pieces_ex d (V vo')); iexact Ho
  iintro ⟨Hst, Hdn⟩
  ihave Hdn' := (Entails.of_eq (dn_eq m d)) $$ Hdn
  icases Hdn' with ⟨Hrow, Ho⟩
  ihave Hrow' := (Entails.of_eq (x_pieces d (xt m d)).symm) $$ Hrow
  ihave Ho' := (Entails.of_eq (o_pieces_row d (xt m d))) $$ Ho
  ihave Hx := (pointsTo_split_subset (q := fullShare) (f := xt m d) (Finset.subset_univ (Pieces.rowSet qK.val : Finset (Idx (ℓx d))))).2 $$ [Hrow' Hxrest]
  · isplitl [Hrow']; · iexact Hrow'
    iexact Hxrest
  iapply Hk
  isplitl [Hst]; · iexact Hst
  rw [held_sub_split (SparseCore.T d) pair_sub ((opC m d).result V), held_pair,
    StableHlo.nullary_result_ne _ _ _ V (show (main_v0 : Ref sig .tc) ≠ main_v17 by decide), StableHlo.nullary_result, hV,
    held_congr (SparseCore.T d) (V := (opC m d).result V) (V' := V)
      (fun b hb => (opC m d).result_of_not_mem V (fun hw => (Finset.mem_sdiff.mp hb).2
        (Finset.mem_insert_of_mem (Finset.mem_singleton.mpr (Finset.mem_singleton.mp hw)))))]
  isplitl [Hx Ho']
  · isplitl [Hx]; · iexact Hx
    iexact Ho'
  · iexact Hrest

end Cert.Proof.CallB16

end
-- ==== Proof.CallPiecesB17.lean ====
/-
  The pieces of one call: row q of the transposed argument, held at some contents, is the 32 vector subcores' pieces of
  it; result q, held whole at some contents, is their pieces of it.
-/
import proofs.«206869_g37898791420194_cont_8to1_b_558_20_alg».proof.Proof.TileB17Defs
import proofs.«206869_g37898791420194_cont_8to1_b_558_20_alg».proof.Proof.LaunchPieces

noncomputable section

namespace Cert.Proof.CallB17

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic
open Cert.Proof.Pieces (crd)

variable {F : FTy → Type}

abbrev UU : Type := URounds (GSem nD τ sig) ℕ × Counters
local notation "𝕄" => MT nD τ sig (HIx 22) (Elt F) ℕ UU ℕ

/-- The call's number. -/
abbrev qK : Fin 22 := 17
theorem hq : qK.val < 22 := qK.isLt

abbrev vx' : DevRef τ sig := Proc.devRef .tc (main_v0 : Ref sig .tc)
abbrev vo' : DevRef τ sig := Proc.devRef .tc (main_v18 : Ref sig .tc)
abbrev ℓx (d : Dev nD) : Loc nD τ sig := (SparseCore.T d).loc main_v0
abbrev ℓo (d : Dev nD) : Loc nD τ sig := (SparseCore.T d).loc main_v18

variable [FloatOps F]

/-- Row q of the transposed argument, held at contents f, is the tasks' pieces of it. -/
theorem x_pieces (d : Dev nD) (f : Buf (Elt F) (ℓx d)) :
    (ℓx d ↦[(Pieces.rowSet qK.val : Finset (Idx (ℓx d)))]{fullShare} f : sProp 𝕄)
      = bigSep Finset.univ fun c : Fin 2 => bigSep Finset.univ fun s : Fin 16 => bigSep (Finset.range 18) (TileB17.xP d (crd c s) f) := by
  rw [← Pieces.in_cover qK.val hq, pointsTo_biUnion _ _ (Pieces.in_disj qK.val hq), Pieces.bigSep_tris]
  refine bigSep_congr fun c _ => bigSep_congr fun s _ => bigSep_congr fun n _ => ?_
  unfold TileB17.xP
  by_cases h : TileB17.valid (crd c s) n
  · rw [if_pos h, if_pos (show Pieces.pnum (c, s, n) < 500 from (TileB17.valid_iff _ _).mp h)]
    show _ = ((TileB17.inM (crd c s) n).view.loc (TileB17.thr d (crd c s)) ↦[(TileB17.inM (crd c s) n).view.set]{fullShare} f)
    rw [show (TileB17.inM (crd c s) n).view.set = Pieces.inSet qK.val hq (c, s, n) from View.set_slice_whole _ _]
  · rw [if_neg h, if_neg (show ¬ Pieces.pnum (c, s, n) < 500 from fun h' => h ((TileB17.valid_iff _ _).mpr h'))]
    rfl

/-- Result q, held whole at contents g, is the tasks' pieces of it at g. -/
theorem o_pieces (d : Dev nD) (g : Buf (Elt F) (ℓo d)) :
    (ℓo d ↦{fullShare} g : sProp 𝕄)
      = bigSep Finset.univ fun c : Fin 2 => bigSep Finset.univ fun s : Fin 16 => bigSep (Finset.range 18) fun n =>
          if TileB17.valid (crd c s) n then
            ((TileB17.outM (crd c s) n).view.loc (TileB17.thr d (crd c s)) ↦[(TileB17.outM (crd c s) n).view.set]{fullShare} g : sProp 𝕄)
          else iprop(emp) := by
  show (ℓo d ↦[(Finset.univ : Finset (Idx (ℓo d)))]{fullShare} g : sProp 𝕄) = _
  rw [← Pieces.out_cover, pointsTo_biUnion _ _ Pieces.out_disj, Pieces.bigSep_tris]
  refine bigSep_congr fun c _ => bigSep_congr fun s _ => bigSep_congr fun n _ => ?_
  by_cases h : TileB17.valid (crd c s) n
  · rw [if_pos h, if_pos (show Pieces.pnum (c, s, n) < 500 from (TileB17.valid_iff _ _).mp h)]
    rw [show (TileB17.outM (crd c s) n).view.set = Pieces.outSet (c, s, n) from View.set_slice_whole _ _]
  · rw [if_neg h, if_neg (show ¬ Pieces.pnum (c, s, n) < 500 from fun h' => h ((TileB17.valid_iff _ _).mpr h'))]
    rfl

end Cert.Proof.CallB17

end
-- ==== Proof.LaunchStepB17.lean ====
/-
  One call of a copy kernel, run from the TensorCore: from the TensorCore's buffers held at a valuation whose transposed
  argument is the transpose, the call leaves them at the same valuation but for result q, which holds row q.
-/
import proofs.«206869_g37898791420194_cont_8to1_b_558_20_alg».proof.Proof.LaunchPB
import proofs.«206869_g37898791420194_cont_8to1_b_558_20_alg».proof.Proof.CallPiecesB17

noncomputable section

namespace Cert.Proof.CallB17

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic
open Idealize.ShloMosaic.StableHlo (tcRefs devRef_mem_tcRefs held_sub_split held_congr)
open Cert.Proof.Pieces (crd)
open Cert.Proof.LaunchKB (K D 𝒱 𝒱₀ v₀ EH P xt)

variable {F : FTy → Type}

local notation "𝕄" => MT nD τ sig (HIx 22) (Elt F) ℕ UU ℕ

variable (m : (ℓ : Loc nD τ sig) → Buf (Elt F) ℓ)
variable [FloatOps F]

/-- Result q held whole at some contents gives every task its pieces of it, each at some contents. -/
theorem o_pieces_ex (d : Dev nD) (g : Buf (Elt F) (ℓo d)) :
    (ℓo d ↦{fullShare} g : sProp 𝕄)
      ⊢ bigSep Finset.univ fun c : Fin 2 => bigSep Finset.univ fun s : Fin 16 => bigSep (Finset.range 18) (TileB17.oP (F := F) d (crd c s)) := by
  rw [o_pieces d g]
  refine bigSep_mono fun c _ => bigSep_mono fun s _ => bigSep_mono fun n _ => ?_
  unfold TileB17.oP
  by_cases h : TileB17.valid (crd c s) n
  · rw [if_pos h, if_pos h]
    exact exists_intro (Φ := fun f => (((TileB17.outM (crd c s) n).view.loc (TileB17.thr d (crd c s)) ↦[(TileB17.outM (crd c s) n).view.set]{fullShare} f : sProp 𝕄))) g
  · rw [if_neg h, if_neg h]; exact BI.Entails.refl _

/-- The tasks' pieces of result q, each holding row q of f, are result q whole holding that row. -/
theorem o_pieces_row (d : Dev nD) (f : Buf (Elt F) (ℓx d)) :
    (bigSep Finset.univ fun c : Fin 2 => bigSep Finset.univ fun s : Fin 16 => bigSep (Finset.range 18) (TileB17.oQ d (crd c s) f))
      = (ℓo d ↦{fullShare} (Cert.Spec.row qK f : Buf (Elt F) (ℓo d)) : sProp 𝕄) := by
  rw [o_pieces d (Cert.Spec.row qK f : Buf (Elt F) (ℓo d))]
  rfl

omit [FloatOps F] in
/-- A separating conjunction over the call's grid of vector subcores, or of SparseCores, is one over sixteen, or two. -/
theorem bigSep_castSub (Φ : Fin 16 → sProp 𝕄) :
    (bigSep Finset.univ fun i : Fin ((K (F := F)).nSub qK) => Φ (i.cast (LaunchKB.nSub_eq qK))) = bigSep Finset.univ Φ :=
  bigSep_congr fun _ _ => congrArg Φ (Fin.ext rfl)
omit [FloatOps F] in
theorem bigSep_castCore (Φ : Fin 2 → sProp 𝕄) :
    (bigSep Finset.univ fun c : Fin ((K (F := F)).nCore qK) => Φ (c.cast (LaunchKB.nCore_eq qK))) = bigSep Finset.univ Φ :=
  bigSep_congr fun _ _ => congrArg Φ (Fin.ext rfl)

theorem goQ_eq (d : Dev nD) (c : Fin 2) (s : Fin 16) : LaunchKB.goQ m qK d c s = TileB17.goRes d (crd c s) (xt m d) := rfl
theorem tdQ_eq (d : Dev nD) (c : Fin 2) (s : Fin 16) : LaunchKB.tdQ m qK d c s = TileB17.tdRes d (crd c s) (xt m d) := rfl

/-- What the call takes for the two SparseCores: every task's pieces. -/
theorem st_eq (d : Dev nD) :
    (bigSep Finset.univ fun c : Fin ((K (F := F)).nCore qK) => (P m).st qK d c)
      = iprop((bigSep Finset.univ fun c : Fin 2 => bigSep Finset.univ fun s : Fin 16 => bigSep (Finset.range 18) (TileB17.xP d (crd c s) (xt m d)))
          ∗ (bigSep Finset.univ fun c : Fin 2 => bigSep Finset.univ fun s : Fin 16 => bigSep (Finset.range 18) (TileB17.oP (F := F) d (crd c s)))) := by
  have h1 : (bigSep Finset.univ fun c : Fin ((K (F := F)).nCore qK) => (P m).st qK d c)
      = bigSep Finset.univ fun c : Fin ((K (F := F)).nCore qK) =>
          (fun c' : Fin 2 => bigSep (Finset.univ : Finset (Fin 16)) fun s => LaunchKB.goQ m qK d c' s) (c.cast (LaunchKB.nCore_eq qK)) :=
    bigSep_congr fun c _ => bigSep_castSub (fun s => LaunchKB.goQ m qK d (c.cast (LaunchKB.nCore_eq qK)) s)
  rw [h1, bigSep_castCore (fun c' : Fin 2 => bigSep (Finset.univ : Finset (Fin 16)) fun s => LaunchKB.goQ m qK d c' s), ← bigSep_sep']
  refine bigSep_congr fun c _ => ?_
  rw [← bigSep_sep']
  refine bigSep_congr fun s _ => ?_
  rw [goQ_eq]; rfl

/-- What it hands back. -/
theorem dn_eq (d : Dev nD) :
    (bigSep Finset.univ fun c : Fin ((K (F := F)).nCore qK) => (P m).dn qK d c)
      = iprop((bigSep Finset.univ fun c : Fin 2 => bigSep Finset.univ fun s : Fin 16 => bigSep (Finset.range 18) (TileB17.xP d (crd c s) (xt m d)))
          ∗ (bigSep Finset.univ fun c : Fin 2 => bigSep Finset.univ fun s : Fin 16 => bigSep (Finset.range 18) (TileB17.oQ d (crd c s) (xt m d)))) := by
  have h1 : (bigSep Finset.univ fun c : Fin ((K (F := F)).nCore qK) => (P m).dn qK d c)
      = bigSep Finset.univ fun c : Fin ((K (F := F)).nCore qK) =>
          (fun c' : Fin 2 => bigSep (Finset.univ : Finset (Fin 16)) fun s => LaunchKB.tdQ m qK d c' s) (c.cast (LaunchKB.nCore_eq qK)) :=
    bigSep_congr fun c _ => bigSep_castSub (fun s => LaunchKB.tdQ m qK d (c.cast (LaunchKB.nCore_eq qK)) s)
  rw [h1, bigSep_castCore (fun c' : Fin 2 => bigSep (Finset.univ : Finset (Fin 16)) fun s => LaunchKB.tdQ m qK d c' s), ← bigSep_sep']
  refine bigSep_congr fun c _ => ?_
  rw [← bigSep_sep']
  refine bigSep_congr fun s _ => ?_
  rw [tdQ_eq]; rfl

omit [FloatOps F] in
theorem pair_sub : ({vx', vo'} : Finset (DevRef τ sig)) ⊆ tcRefs τ sig :=
  Finset.insert_subset (devRef_mem_tcRefs _) (Finset.singleton_subset_iff.mpr (devRef_mem_tcRefs _))

omit [FloatOps F] in
theorem held_pair (d : Dev nD) (V : Valuation τ sig (Elt F)) :
    (held (SparseCore.T d) ({vx', vo'} : Finset (DevRef τ sig)) V : sProp 𝕄) = iprop((ℓx d ↦{fullShare} V vx') ∗ (ℓo d ↦{fullShare} V vo')) := by
  unfold held; rw [SparseCore.bigSep_insert' (by decide), bigSep_singleton]

/-- What the call does to the TensorCore's buffers, as an operation on valuations: result q takes row q of the transpose. -/
abbrev opC (d : Dev nD) : HloOp τ sig (Elt F) := StableHlo.nullary main_v18 (Cert.Spec.row qK (xt m d))

/-- The call, from the TensorCore's buffers held at a valuation V whose transposed argument is the transpose: it
    leaves them at V but for result q, which holds row q of the transpose. -/
theorem step (κ : GSem nD τ sig → ℕ) (d : Dev nD) (V : Valuation τ sig (Elt F)) (hV : V vx' = xt m d) {Φ : PUnit → sProp 𝕄} :
    iprop((K (F := F)).ctx EH (P m) κ ∗ (K (F := F)).tcSt EH d qK.val ∗ held (SparseCore.T d) (tcRefs τ sig) V
        ∗ (((K (F := F)).tcSt EH d (qK.val + 1) ∗ held (SparseCore.T d) (tcRefs τ sig) ((opC m d).result V)) -∗ Φ ⟨⟩))
      ⊢ wp frame (wpE ((K (F := F)).defs (D (F := F))) 𝒱 (SparseCore.T d) none) Set.univ ((K (F := F)).run d qK) Φ := by
  rw [held_sub_split (SparseCore.T d) pair_sub V, held_pair, hV]
  iintro ⟨#Hctx, Hst, ⟨⟨Hx, Ho⟩, Hrest⟩, Hk⟩
  ihave Hx' := (pointsTo_split_subset (q := fullShare) (f := xt m d) (Finset.subset_univ (Pieces.rowSet qK.val : Finset (Idx (ℓx d))))).1 $$ Hx
  icases Hx' with ⟨Hrow, Hxrest⟩
  iapply ((K (F := F)).wp_run (D (F := F)) 𝒱 (EH := EH) (P := P m) κ d qK) $$ [Hst Hrow Ho Hk Hxrest Hrest]
  isplitr; · iexact Hctx
  isplitl [Hst]; · iexact Hst
  isplitl [Hrow Ho]
  · rw [st_eq]
    isplitl [Hrow]
    · iapply (Entails.of_eq (x_pieces d (xt m d))); iexact Hrow
    · iapply (o_pieces_ex d (V vo')); iexact Ho
  iintro ⟨Hst, Hdn⟩
  ihave Hdn' := (Entails.of_eq (dn_eq m d)) $$ Hdn
  icases Hdn' with ⟨Hrow, Ho⟩
  ihave Hrow' := (Entails.of_eq (x_pieces d (xt m d)).symm) $$ Hrow
  ihave Ho' := (Entails.of_eq (o_pieces_row d (xt m d))) $$ Ho
  ihave Hx := (pointsTo_split_subset (q := fullShare) (f := xt m d) (Finset.subset_univ (Pieces.rowSet qK.val : Finset (Idx (ℓx d))))).2 $$ [Hrow' Hxrest]
  · isplitl [Hrow']; · iexact Hrow'
    iexact Hxrest
  iapply Hk
  isplitl [Hst]; · iexact Hst
  rw [held_sub_split (SparseCore.T d) pair_sub ((opC m d).result V), held_pair,
    StableHlo.nullary_result_ne _ _ _ V (show (main_v0 : Ref sig .tc) ≠ main_v18 by decide), StableHlo.nullary_result, hV,
    held_congr (SparseCore.T d) (V := (opC m d).result V) (V' := V)
      (fun b hb => (opC m d).result_of_not_mem V (fun hw => (Finset.mem_sdiff.mp hb).2
        (Finset.mem_insert_of_mem (Finset.mem_singleton.mpr (Finset.mem_singleton.mp hw)))))]
  isplitl [Hx Ho']
  · isplitl [Hx]; · iexact Hx
    iexact Ho'
  · iexact Hrest

end Cert.Proof.CallB17

end
-- ==== Proof.CallPiecesB18.lean ====
/-
  The pieces of one call: row q of the transposed argument, held at some contents, is the 32 vector subcores' pieces of
  it; result q, held whole at some contents, is their pieces of it.
-/
import proofs.«206869_g37898791420194_cont_8to1_b_558_20_alg».proof.Proof.TileB18Defs
import proofs.«206869_g37898791420194_cont_8to1_b_558_20_alg».proof.Proof.LaunchPieces

noncomputable section

namespace Cert.Proof.CallB18

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic
open Cert.Proof.Pieces (crd)

variable {F : FTy → Type}

abbrev UU : Type := URounds (GSem nD τ sig) ℕ × Counters
local notation "𝕄" => MT nD τ sig (HIx 22) (Elt F) ℕ UU ℕ

/-- The call's number. -/
abbrev qK : Fin 22 := 18
theorem hq : qK.val < 22 := qK.isLt

abbrev vx' : DevRef τ sig := Proc.devRef .tc (main_v0 : Ref sig .tc)
abbrev vo' : DevRef τ sig := Proc.devRef .tc (main_v19 : Ref sig .tc)
abbrev ℓx (d : Dev nD) : Loc nD τ sig := (SparseCore.T d).loc main_v0
abbrev ℓo (d : Dev nD) : Loc nD τ sig := (SparseCore.T d).loc main_v19

variable [FloatOps F]

/-- Row q of the transposed argument, held at contents f, is the tasks' pieces of it. -/
theorem x_pieces (d : Dev nD) (f : Buf (Elt F) (ℓx d)) :
    (ℓx d ↦[(Pieces.rowSet qK.val : Finset (Idx (ℓx d)))]{fullShare} f : sProp 𝕄)
      = bigSep Finset.univ fun c : Fin 2 => bigSep Finset.univ fun s : Fin 16 => bigSep (Finset.range 18) (TileB18.xP d (crd c s) f) := by
  rw [← Pieces.in_cover qK.val hq, pointsTo_biUnion _ _ (Pieces.in_disj qK.val hq), Pieces.bigSep_tris]
  refine bigSep_congr fun c _ => bigSep_congr fun s _ => bigSep_congr fun n _ => ?_
  unfold TileB18.xP
  by_cases h : TileB18.valid (crd c s) n
  · rw [if_pos h, if_pos (show Pieces.pnum (c, s, n) < 500 from (TileB18.valid_iff _ _).mp h)]
    show _ = ((TileB18.inM (crd c s) n).view.loc (TileB18.thr d (crd c s)) ↦[(TileB18.inM (crd c s) n).view.set]{fullShare} f)
    rw [show (TileB18.inM (crd c s) n).view.set = Pieces.inSet qK.val hq (c, s, n) from View.set_slice_whole _ _]
  · rw [if_neg h, if_neg (show ¬ Pieces.pnum (c, s, n) < 500 from fun h' => h ((TileB18.valid_iff _ _).mpr h'))]
    rfl

/-- Result q, held whole at contents g, is the tasks' pieces of it at g. -/
theorem o_pieces (d : Dev nD) (g : Buf (Elt F) (ℓo d)) :
    (ℓo d ↦{fullShare} g : sProp 𝕄)
      = bigSep Finset.univ fun c : Fin 2 => bigSep Finset.univ fun s : Fin 16 => bigSep (Finset.range 18) fun n =>
          if TileB18.valid (crd c s) n then
            ((TileB18.outM (crd c s) n).view.loc (TileB18.thr d (crd c s)) ↦[(TileB18.outM (crd c s) n).view.set]{fullShare} g : sProp 𝕄)
          else iprop(emp) := by
  show (ℓo d ↦[(Finset.univ : Finset (Idx (ℓo d)))]{fullShare} g : sProp 𝕄) = _
  rw [← Pieces.out_cover, pointsTo_biUnion _ _ Pieces.out_disj, Pieces.bigSep_tris]
  refine bigSep_congr fun c _ => bigSep_congr fun s _ => bigSep_congr fun n _ => ?_
  by_cases h : TileB18.valid (crd c s) n
  · rw [if_pos h, if_pos (show Pieces.pnum (c, s, n) < 500 from (TileB18.valid_iff _ _).mp h)]
    rw [show (TileB18.outM (crd c s) n).view.set = Pieces.outSet (c, s, n) from View.set_slice_whole _ _]
  · rw [if_neg h, if_neg (show ¬ Pieces.pnum (c, s, n) < 500 from fun h' => h ((TileB18.valid_iff _ _).mpr h'))]
    rfl

end Cert.Proof.CallB18

end
-- ==== Proof.LaunchStepB18.lean ====
/-
  One call of a copy kernel, run from the TensorCore: from the TensorCore's buffers held at a valuation whose transposed
  argument is the transpose, the call leaves them at the same valuation but for result q, which holds row q.
-/
import proofs.«206869_g37898791420194_cont_8to1_b_558_20_alg».proof.Proof.LaunchPB
import proofs.«206869_g37898791420194_cont_8to1_b_558_20_alg».proof.Proof.CallPiecesB18

noncomputable section

namespace Cert.Proof.CallB18

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic
open Idealize.ShloMosaic.StableHlo (tcRefs devRef_mem_tcRefs held_sub_split held_congr)
open Cert.Proof.Pieces (crd)
open Cert.Proof.LaunchKB (K D 𝒱 𝒱₀ v₀ EH P xt)

variable {F : FTy → Type}

local notation "𝕄" => MT nD τ sig (HIx 22) (Elt F) ℕ UU ℕ

variable (m : (ℓ : Loc nD τ sig) → Buf (Elt F) ℓ)
variable [FloatOps F]

/-- Result q held whole at some contents gives every task its pieces of it, each at some contents. -/
theorem o_pieces_ex (d : Dev nD) (g : Buf (Elt F) (ℓo d)) :
    (ℓo d ↦{fullShare} g : sProp 𝕄)
      ⊢ bigSep Finset.univ fun c : Fin 2 => bigSep Finset.univ fun s : Fin 16 => bigSep (Finset.range 18) (TileB18.oP (F := F) d (crd c s)) := by
  rw [o_pieces d g]
  refine bigSep_mono fun c _ => bigSep_mono fun s _ => bigSep_mono fun n _ => ?_
  unfold TileB18.oP
  by_cases h : TileB18.valid (crd c s) n
  · rw [if_pos h, if_pos h]
    exact exists_intro (Φ := fun f => (((TileB18.outM (crd c s) n).view.loc (TileB18.thr d (crd c s)) ↦[(TileB18.outM (crd c s) n).view.set]{fullShare} f : sProp 𝕄))) g
  · rw [if_neg h, if_neg h]; exact BI.Entails.refl _

/-- The tasks' pieces of result q, each holding row q of f, are result q whole holding that row. -/
theorem o_pieces_row (d : Dev nD) (f : Buf (Elt F) (ℓx d)) :
    (bigSep Finset.univ fun c : Fin 2 => bigSep Finset.univ fun s : Fin 16 => bigSep (Finset.range 18) (TileB18.oQ d (crd c s) f))
      = (ℓo d ↦{fullShare} (Cert.Spec.row qK f : Buf (Elt F) (ℓo d)) : sProp 𝕄) := by
  rw [o_pieces d (Cert.Spec.row qK f : Buf (Elt F) (ℓo d))]
  rfl

omit [FloatOps F] in
/-- A separating conjunction over the call's grid of vector subcores, or of SparseCores, is one over sixteen, or two. -/
theorem bigSep_castSub (Φ : Fin 16 → sProp 𝕄) :
    (bigSep Finset.univ fun i : Fin ((K (F := F)).nSub qK) => Φ (i.cast (LaunchKB.nSub_eq qK))) = bigSep Finset.univ Φ :=
  bigSep_congr fun _ _ => congrArg Φ (Fin.ext rfl)
omit [FloatOps F] in
theorem bigSep_castCore (Φ : Fin 2 → sProp 𝕄) :
    (bigSep Finset.univ fun c : Fin ((K (F := F)).nCore qK) => Φ (c.cast (LaunchKB.nCore_eq qK))) = bigSep Finset.univ Φ :=
  bigSep_congr fun _ _ => congrArg Φ (Fin.ext rfl)

theorem goQ_eq (d : Dev nD) (c : Fin 2) (s : Fin 16) : LaunchKB.goQ m qK d c s = TileB18.goRes d (crd c s) (xt m d) := rfl
theorem tdQ_eq (d : Dev nD) (c : Fin 2) (s : Fin 16) : LaunchKB.tdQ m qK d c s = TileB18.tdRes d (crd c s) (xt m d) := rfl

/-- What the call takes for the two SparseCores: every task's pieces. -/
theorem st_eq (d : Dev nD) :
    (bigSep Finset.univ fun c : Fin ((K (F := F)).nCore qK) => (P m).st qK d c)
      = iprop((bigSep Finset.univ fun c : Fin 2 => bigSep Finset.univ fun s : Fin 16 => bigSep (Finset.range 18) (TileB18.xP d (crd c s) (xt m d)))
          ∗ (bigSep Finset.univ fun c : Fin 2 => bigSep Finset.univ fun s : Fin 16 => bigSep (Finset.range 18) (TileB18.oP (F := F) d (crd c s)))) := by
  have h1 : (bigSep Finset.univ fun c : Fin ((K (F := F)).nCore qK) => (P m).st qK d c)
      = bigSep Finset.univ fun c : Fin ((K (F := F)).nCore qK) =>
          (fun c' : Fin 2 => bigSep (Finset.univ : Finset (Fin 16)) fun s => LaunchKB.goQ m qK d c' s) (c.cast (LaunchKB.nCore_eq qK)) :=
    bigSep_congr fun c _ => bigSep_castSub (fun s => LaunchKB.goQ m qK d (c.cast (LaunchKB.nCore_eq qK)) s)
  rw [h1, bigSep_castCore (fun c' : Fin 2 => bigSep (Finset.univ : Finset (Fin 16)) fun s => LaunchKB.goQ m qK d c' s), ← bigSep_sep']
  refine bigSep_congr fun c _ => ?_
  rw [← bigSep_sep']
  refine bigSep_congr fun s _ => ?_
  rw [goQ_eq]; rfl

/-- What it hands back. -/
theorem dn_eq (d : Dev nD) :
    (bigSep Finset.univ fun c : Fin ((K (F := F)).nCore qK) => (P m).dn qK d c)
      = iprop((bigSep Finset.univ fun c : Fin 2 => bigSep Finset.univ fun s : Fin 16 => bigSep (Finset.range 18) (TileB18.xP d (crd c s) (xt m d)))
          ∗ (bigSep Finset.univ fun c : Fin 2 => bigSep Finset.univ fun s : Fin 16 => bigSep (Finset.range 18) (TileB18.oQ d (crd c s) (xt m d)))) := by
  have h1 : (bigSep Finset.univ fun c : Fin ((K (F := F)).nCore qK) => (P m).dn qK d c)
      = bigSep Finset.univ fun c : Fin ((K (F := F)).nCore qK) =>
          (fun c' : Fin 2 => bigSep (Finset.univ : Finset (Fin 16)) fun s => LaunchKB.tdQ m qK d c' s) (c.cast (LaunchKB.nCore_eq qK)) :=
    bigSep_congr fun c _ => bigSep_castSub (fun s => LaunchKB.tdQ m qK d (c.cast (LaunchKB.nCore_eq qK)) s)
  rw [h1, bigSep_castCore (fun c' : Fin 2 => bigSep (Finset.univ : Finset (Fin 16)) fun s => LaunchKB.tdQ m qK d c' s), ← bigSep_sep']
  refine bigSep_congr fun c _ => ?_
  rw [← bigSep_sep']
  refine bigSep_congr fun s _ => ?_
  rw [tdQ_eq]; rfl

omit [FloatOps F] in
theorem pair_sub : ({vx', vo'} : Finset (DevRef τ sig)) ⊆ tcRefs τ sig :=
  Finset.insert_subset (devRef_mem_tcRefs _) (Finset.singleton_subset_iff.mpr (devRef_mem_tcRefs _))

omit [FloatOps F] in
theorem held_pair (d : Dev nD) (V : Valuation τ sig (Elt F)) :
    (held (SparseCore.T d) ({vx', vo'} : Finset (DevRef τ sig)) V : sProp 𝕄) = iprop((ℓx d ↦{fullShare} V vx') ∗ (ℓo d ↦{fullShare} V vo')) := by
  unfold held; rw [SparseCore.bigSep_insert' (by decide), bigSep_singleton]

/-- What the call does to the TensorCore's buffers, as an operation on valuations: result q takes row q of the transpose. -/
abbrev opC (d : Dev nD) : HloOp τ sig (Elt F) := StableHlo.nullary main_v19 (Cert.Spec.row qK (xt m d))

/-- The call, from the TensorCore's buffers held at a valuation V whose transposed argument is the transpose: it
    leaves them at V but for result q, which holds row q of the transpose. -/
theorem step (κ : GSem nD τ sig → ℕ) (d : Dev nD) (V : Valuation τ sig (Elt F)) (hV : V vx' = xt m d) {Φ : PUnit → sProp 𝕄} :
    iprop((K (F := F)).ctx EH (P m) κ ∗ (K (F := F)).tcSt EH d qK.val ∗ held (SparseCore.T d) (tcRefs τ sig) V
        ∗ (((K (F := F)).tcSt EH d (qK.val + 1) ∗ held (SparseCore.T d) (tcRefs τ sig) ((opC m d).result V)) -∗ Φ ⟨⟩))
      ⊢ wp frame (wpE ((K (F := F)).defs (D (F := F))) 𝒱 (SparseCore.T d) none) Set.univ ((K (F := F)).run d qK) Φ := by
  rw [held_sub_split (SparseCore.T d) pair_sub V, held_pair, hV]
  iintro ⟨#Hctx, Hst, ⟨⟨Hx, Ho⟩, Hrest⟩, Hk⟩
  ihave Hx' := (pointsTo_split_subset (q := fullShare) (f := xt m d) (Finset.subset_univ (Pieces.rowSet qK.val : Finset (Idx (ℓx d))))).1 $$ Hx
  icases Hx' with ⟨Hrow, Hxrest⟩
  iapply ((K (F := F)).wp_run (D (F := F)) 𝒱 (EH := EH) (P := P m) κ d qK) $$ [Hst Hrow Ho Hk Hxrest Hrest]
  isplitr; · iexact Hctx
  isplitl [Hst]; · iexact Hst
  isplitl [Hrow Ho]
  · rw [st_eq]
    isplitl [Hrow]
    · iapply (Entails.of_eq (x_pieces d (xt m d))); iexact Hrow
    · iapply (o_pieces_ex d (V vo')); iexact Ho
  iintro ⟨Hst, Hdn⟩
  ihave Hdn' := (Entails.of_eq (dn_eq m d)) $$ Hdn
  icases Hdn' with ⟨Hrow, Ho⟩
  ihave Hrow' := (Entails.of_eq (x_pieces d (xt m d)).symm) $$ Hrow
  ihave Ho' := (Entails.of_eq (o_pieces_row d (xt m d))) $$ Ho
  ihave Hx := (pointsTo_split_subset (q := fullShare) (f := xt m d) (Finset.subset_univ (Pieces.rowSet qK.val : Finset (Idx (ℓx d))))).2 $$ [Hrow' Hxrest]
  · isplitl [Hrow']; · iexact Hrow'
    iexact Hxrest
  iapply Hk
  isplitl [Hst]; · iexact Hst
  rw [held_sub_split (SparseCore.T d) pair_sub ((opC m d).result V), held_pair,
    StableHlo.nullary_result_ne _ _ _ V (show (main_v0 : Ref sig .tc) ≠ main_v19 by decide), StableHlo.nullary_result, hV,
    held_congr (SparseCore.T d) (V := (opC m d).result V) (V' := V)
      (fun b hb => (opC m d).result_of_not_mem V (fun hw => (Finset.mem_sdiff.mp hb).2
        (Finset.mem_insert_of_mem (Finset.mem_singleton.mpr (Finset.mem_singleton.mp hw)))))]
  isplitl [Hx Ho']
  · isplitl [Hx]; · iexact Hx
    iexact Ho'
  · iexact Hrest

end Cert.Proof.CallB18

end
-- ==== Proof.CallPiecesB19.lean ====
/-
  The pieces of one call: row q of the transposed argument, held at some contents, is the 32 vector subcores' pieces of
  it; result q, held whole at some contents, is their pieces of it.
-/
import proofs.«206869_g37898791420194_cont_8to1_b_558_20_alg».proof.Proof.TileB19Defs
import proofs.«206869_g37898791420194_cont_8to1_b_558_20_alg».proof.Proof.LaunchPieces

noncomputable section

namespace Cert.Proof.CallB19

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic
open Cert.Proof.Pieces (crd)

variable {F : FTy → Type}

abbrev UU : Type := URounds (GSem nD τ sig) ℕ × Counters
local notation "𝕄" => MT nD τ sig (HIx 22) (Elt F) ℕ UU ℕ

/-- The call's number. -/
abbrev qK : Fin 22 := 19
theorem hq : qK.val < 22 := qK.isLt

abbrev vx' : DevRef τ sig := Proc.devRef .tc (main_v0 : Ref sig .tc)
abbrev vo' : DevRef τ sig := Proc.devRef .tc (main_v20 : Ref sig .tc)
abbrev ℓx (d : Dev nD) : Loc nD τ sig := (SparseCore.T d).loc main_v0
abbrev ℓo (d : Dev nD) : Loc nD τ sig := (SparseCore.T d).loc main_v20

variable [FloatOps F]

/-- Row q of the transposed argument, held at contents f, is the tasks' pieces of it. -/
theorem x_pieces (d : Dev nD) (f : Buf (Elt F) (ℓx d)) :
    (ℓx d ↦[(Pieces.rowSet qK.val : Finset (Idx (ℓx d)))]{fullShare} f : sProp 𝕄)
      = bigSep Finset.univ fun c : Fin 2 => bigSep Finset.univ fun s : Fin 16 => bigSep (Finset.range 18) (TileB19.xP d (crd c s) f) := by
  rw [← Pieces.in_cover qK.val hq, pointsTo_biUnion _ _ (Pieces.in_disj qK.val hq), Pieces.bigSep_tris]
  refine bigSep_congr fun c _ => bigSep_congr fun s _ => bigSep_congr fun n _ => ?_
  unfold TileB19.xP
  by_cases h : TileB19.valid (crd c s) n
  · rw [if_pos h, if_pos (show Pieces.pnum (c, s, n) < 500 from (TileB19.valid_iff _ _).mp h)]
    show _ = ((TileB19.inM (crd c s) n).view.loc (TileB19.thr d (crd c s)) ↦[(TileB19.inM (crd c s) n).view.set]{fullShare} f)
    rw [show (TileB19.inM (crd c s) n).view.set = Pieces.inSet qK.val hq (c, s, n) from View.set_slice_whole _ _]
  · rw [if_neg h, if_neg (show ¬ Pieces.pnum (c, s, n) < 500 from fun h' => h ((TileB19.valid_iff _ _).mpr h'))]
    rfl

/-- Result q, held whole at contents g, is the tasks' pieces of it at g. -/
theorem o_pieces (d : Dev nD) (g : Buf (Elt F) (ℓo d)) :
    (ℓo d ↦{fullShare} g : sProp 𝕄)
      = bigSep Finset.univ fun c : Fin 2 => bigSep Finset.univ fun s : Fin 16 => bigSep (Finset.range 18) fun n =>
          if TileB19.valid (crd c s) n then
            ((TileB19.outM (crd c s) n).view.loc (TileB19.thr d (crd c s)) ↦[(TileB19.outM (crd c s) n).view.set]{fullShare} g : sProp 𝕄)
          else iprop(emp) := by
  show (ℓo d ↦[(Finset.univ : Finset (Idx (ℓo d)))]{fullShare} g : sProp 𝕄) = _
  rw [← Pieces.out_cover, pointsTo_biUnion _ _ Pieces.out_disj, Pieces.bigSep_tris]
  refine bigSep_congr fun c _ => bigSep_congr fun s _ => bigSep_congr fun n _ => ?_
  by_cases h : TileB19.valid (crd c s) n
  · rw [if_pos h, if_pos (show Pieces.pnum (c, s, n) < 500 from (TileB19.valid_iff _ _).mp h)]
    rw [show (TileB19.outM (crd c s) n).view.set = Pieces.outSet (c, s, n) from View.set_slice_whole _ _]
  · rw [if_neg h, if_neg (show ¬ Pieces.pnum (c, s, n) < 500 from fun h' => h ((TileB19.valid_iff _ _).mpr h'))]
    rfl

end Cert.Proof.CallB19

end
-- ==== Proof.LaunchStepB19.lean ====
/-
  One call of a copy kernel, run from the TensorCore: from the TensorCore's buffers held at a valuation whose transposed
  argument is the transpose, the call leaves them at the same valuation but for result q, which holds row q.
-/
import proofs.«206869_g37898791420194_cont_8to1_b_558_20_alg».proof.Proof.LaunchPB
import proofs.«206869_g37898791420194_cont_8to1_b_558_20_alg».proof.Proof.CallPiecesB19

noncomputable section

namespace Cert.Proof.CallB19

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic
open Idealize.ShloMosaic.StableHlo (tcRefs devRef_mem_tcRefs held_sub_split held_congr)
open Cert.Proof.Pieces (crd)
open Cert.Proof.LaunchKB (K D 𝒱 𝒱₀ v₀ EH P xt)

variable {F : FTy → Type}

local notation "𝕄" => MT nD τ sig (HIx 22) (Elt F) ℕ UU ℕ

variable (m : (ℓ : Loc nD τ sig) → Buf (Elt F) ℓ)
variable [FloatOps F]

/-- Result q held whole at some contents gives every task its pieces of it, each at some contents. -/
theorem o_pieces_ex (d : Dev nD) (g : Buf (Elt F) (ℓo d)) :
    (ℓo d ↦{fullShare} g : sProp 𝕄)
      ⊢ bigSep Finset.univ fun c : Fin 2 => bigSep Finset.univ fun s : Fin 16 => bigSep (Finset.range 18) (TileB19.oP (F := F) d (crd c s)) := by
  rw [o_pieces d g]
  refine bigSep_mono fun c _ => bigSep_mono fun s _ => bigSep_mono fun n _ => ?_
  unfold TileB19.oP
  by_cases h : TileB19.valid (crd c s) n
  · rw [if_pos h, if_pos h]
    exact exists_intro (Φ := fun f => (((TileB19.outM (crd c s) n).view.loc (TileB19.thr d (crd c s)) ↦[(TileB19.outM (crd c s) n).view.set]{fullShare} f : sProp 𝕄))) g
  · rw [if_neg h, if_neg h]; exact BI.Entails.refl _

/-- The tasks' pieces of result q, each holding row q of f, are result q whole holding that row. -/
theorem o_pieces_row (d : Dev nD) (f : Buf (Elt F) (ℓx d)) :
    (bigSep Finset.univ fun c : Fin 2 => bigSep Finset.univ fun s : Fin 16 => bigSep (Finset.range 18) (TileB19.oQ d (crd c s) f))
      = (ℓo d ↦{fullShare} (Cert.Spec.row qK f : Buf (Elt F) (ℓo d)) : sProp 𝕄) := by
  rw [o_pieces d (Cert.Spec.row qK f : Buf (Elt F) (ℓo d))]
  rfl

omit [FloatOps F] in
/-- A separating conjunction over the call's grid of vector subcores, or of SparseCores, is one over sixteen, or two. -/
theorem bigSep_castSub (Φ : Fin 16 → sProp 𝕄) :
    (bigSep Finset.univ fun i : Fin ((K (F := F)).nSub qK) => Φ (i.cast (LaunchKB.nSub_eq qK))) = bigSep Finset.univ Φ :=
  bigSep_congr fun _ _ => congrArg Φ (Fin.ext rfl)
omit [FloatOps F] in
theorem bigSep_castCore (Φ : Fin 2 → sProp 𝕄) :
    (bigSep Finset.univ fun c : Fin ((K (F := F)).nCore qK) => Φ (c.cast (LaunchKB.nCore_eq qK))) = bigSep Finset.univ Φ :=
  bigSep_congr fun _ _ => congrArg Φ (Fin.ext rfl)

theorem goQ_eq (d : Dev nD) (c : Fin 2) (s : Fin 16) : LaunchKB.goQ m qK d c s = TileB19.goRes d (crd c s) (xt m d) := rfl
theorem tdQ_eq (d : Dev nD) (c : Fin 2) (s : Fin 16) : LaunchKB.tdQ m qK d c s = TileB19.tdRes d (crd c s) (xt m d) := rfl

/-- What the call takes for the two SparseCores: every task's pieces. -/
theorem st_eq (d : Dev nD) :
    (bigSep Finset.univ fun c : Fin ((K (F := F)).nCore qK) => (P m).st qK d c)
      = iprop((bigSep Finset.univ fun c : Fin 2 => bigSep Finset.univ fun s : Fin 16 => bigSep (Finset.range 18) (TileB19.xP d (crd c s) (xt m d)))
          ∗ (bigSep Finset.univ fun c : Fin 2 => bigSep Finset.univ fun s : Fin 16 => bigSep (Finset.range 18) (TileB19.oP (F := F) d (crd c s)))) := by
  have h1 : (bigSep Finset.univ fun c : Fin ((K (F := F)).nCore qK) => (P m).st qK d c)
      = bigSep Finset.univ fun c : Fin ((K (F := F)).nCore qK) =>
          (fun c' : Fin 2 => bigSep (Finset.univ : Finset (Fin 16)) fun s => LaunchKB.goQ m qK d c' s) (c.cast (LaunchKB.nCore_eq qK)) :=
    bigSep_congr fun c _ => bigSep_castSub (fun s => LaunchKB.goQ m qK d (c.cast (LaunchKB.nCore_eq qK)) s)
  rw [h1, bigSep_castCore (fun c' : Fin 2 => bigSep (Finset.univ : Finset (Fin 16)) fun s => LaunchKB.goQ m qK d c' s), ← bigSep_sep']
  refine bigSep_congr fun c _ => ?_
  rw [← bigSep_sep']
  refine bigSep_congr fun s _ => ?_
  rw [goQ_eq]; rfl

/-- What it hands back. -/
theorem dn_eq (d : Dev nD) :
    (bigSep Finset.univ fun c : Fin ((K (F := F)).nCore qK) => (P m).dn qK d c)
      = iprop((bigSep Finset.univ fun c : Fin 2 => bigSep Finset.univ fun s : Fin 16 => bigSep (Finset.range 18) (TileB19.xP d (crd c s) (xt m d)))
          ∗ (bigSep Finset.univ fun c : Fin 2 => bigSep Finset.univ fun s : Fin 16 => bigSep (Finset.range 18) (TileB19.oQ d (crd c s) (xt m d)))) := by
  have h1 : (bigSep Finset.univ fun c : Fin ((K (F := F)).nCore qK) => (P m).dn qK d c)
      = bigSep Finset.univ fun c : Fin ((K (F := F)).nCore qK) =>
          (fun c' : Fin 2 => bigSep (Finset.univ : Finset (Fin 16)) fun s => LaunchKB.tdQ m qK d c' s) (c.cast (LaunchKB.nCore_eq qK)) :=
    bigSep_congr fun c _ => bigSep_castSub (fun s => LaunchKB.tdQ m qK d (c.cast (LaunchKB.nCore_eq qK)) s)
  rw [h1, bigSep_castCore (fun c' : Fin 2 => bigSep (Finset.univ : Finset (Fin 16)) fun s => LaunchKB.tdQ m qK d c' s), ← bigSep_sep']
  refine bigSep_congr fun c _ => ?_
  rw [← bigSep_sep']
  refine bigSep_congr fun s _ => ?_
  rw [tdQ_eq]; rfl

omit [FloatOps F] in
theorem pair_sub : ({vx', vo'} : Finset (DevRef τ sig)) ⊆ tcRefs τ sig :=
  Finset.insert_subset (devRef_mem_tcRefs _) (Finset.singleton_subset_iff.mpr (devRef_mem_tcRefs _))

omit [FloatOps F] in
theorem held_pair (d : Dev nD) (V : Valuation τ sig (Elt F)) :
    (held (SparseCore.T d) ({vx', vo'} : Finset (DevRef τ sig)) V : sProp 𝕄) = iprop((ℓx d ↦{fullShare} V vx') ∗ (ℓo d ↦{fullShare} V vo')) := by
  unfold held; rw [SparseCore.bigSep_insert' (by decide), bigSep_singleton]

/-- What the call does to the TensorCore's buffers, as an operation on valuations: result q takes row q of the transpose. -/
abbrev opC (d : Dev nD) : HloOp τ sig (Elt F) := StableHlo.nullary main_v20 (Cert.Spec.row qK (xt m d))

/-- The call, from the TensorCore's buffers held at a valuation V whose transposed argument is the transpose: it
    leaves them at V but for result q, which holds row q of the transpose. -/
theorem step (κ : GSem nD τ sig → ℕ) (d : Dev nD) (V : Valuation τ sig (Elt F)) (hV : V vx' = xt m d) {Φ : PUnit → sProp 𝕄} :
    iprop((K (F := F)).ctx EH (P m) κ ∗ (K (F := F)).tcSt EH d qK.val ∗ held (SparseCore.T d) (tcRefs τ sig) V
        ∗ (((K (F := F)).tcSt EH d (qK.val + 1) ∗ held (SparseCore.T d) (tcRefs τ sig) ((opC m d).result V)) -∗ Φ ⟨⟩))
      ⊢ wp frame (wpE ((K (F := F)).defs (D (F := F))) 𝒱 (SparseCore.T d) none) Set.univ ((K (F := F)).run d qK) Φ := by
  rw [held_sub_split (SparseCore.T d) pair_sub V, held_pair, hV]
  iintro ⟨#Hctx, Hst, ⟨⟨Hx, Ho⟩, Hrest⟩, Hk⟩
  ihave Hx' := (pointsTo_split_subset (q := fullShare) (f := xt m d) (Finset.subset_univ (Pieces.rowSet qK.val : Finset (Idx (ℓx d))))).1 $$ Hx
  icases Hx' with ⟨Hrow, Hxrest⟩
  iapply ((K (F := F)).wp_run (D (F := F)) 𝒱 (EH := EH) (P := P m) κ d qK) $$ [Hst Hrow Ho Hk Hxrest Hrest]
  isplitr; · iexact Hctx
  isplitl [Hst]; · iexact Hst
  isplitl [Hrow Ho]
  · rw [st_eq]
    isplitl [Hrow]
    · iapply (Entails.of_eq (x_pieces d (xt m d))); iexact Hrow
    · iapply (o_pieces_ex d (V vo')); iexact Ho
  iintro ⟨Hst, Hdn⟩
  ihave Hdn' := (Entails.of_eq (dn_eq m d)) $$ Hdn
  icases Hdn' with ⟨Hrow, Ho⟩
  ihave Hrow' := (Entails.of_eq (x_pieces d (xt m d)).symm) $$ Hrow
  ihave Ho' := (Entails.of_eq (o_pieces_row d (xt m d))) $$ Ho
  ihave Hx := (pointsTo_split_subset (q := fullShare) (f := xt m d) (Finset.subset_univ (Pieces.rowSet qK.val : Finset (Idx (ℓx d))))).2 $$ [Hrow' Hxrest]
  · isplitl [Hrow']; · iexact Hrow'
    iexact Hxrest
  iapply Hk
  isplitl [Hst]; · iexact Hst
  rw [held_sub_split (SparseCore.T d) pair_sub ((opC m d).result V), held_pair,
    StableHlo.nullary_result_ne _ _ _ V (show (main_v0 : Ref sig .tc) ≠ main_v20 by decide), StableHlo.nullary_result, hV,
    held_congr (SparseCore.T d) (V := (opC m d).result V) (V' := V)
      (fun b hb => (opC m d).result_of_not_mem V (fun hw => (Finset.mem_sdiff.mp hb).2
        (Finset.mem_insert_of_mem (Finset.mem_singleton.mpr (Finset.mem_singleton.mp hw)))))]
  isplitl [Hx Ho']
  · isplitl [Hx]; · iexact Hx
    iexact Ho'
  · iexact Hrest

end Cert.Proof.CallB19

end
-- ==== Proof.CallPiecesB20.lean ====
/-
  The pieces of one call: row q of the transposed argument, held at some contents, is the 32 vector subcores' pieces of
  it; result q, held whole at some contents, is their pieces of it.
-/
import proofs.«206869_g37898791420194_cont_8to1_b_558_20_alg».proof.Proof.TileB20Defs
import proofs.«206869_g37898791420194_cont_8to1_b_558_20_alg».proof.Proof.LaunchPieces

noncomputable section

namespace Cert.Proof.CallB20

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic
open Cert.Proof.Pieces (crd)

variable {F : FTy → Type}

abbrev UU : Type := URounds (GSem nD τ sig) ℕ × Counters
local notation "𝕄" => MT nD τ sig (HIx 22) (Elt F) ℕ UU ℕ

/-- The call's number. -/
abbrev qK : Fin 22 := 20
theorem hq : qK.val < 22 := qK.isLt

abbrev vx' : DevRef τ sig := Proc.devRef .tc (main_v0 : Ref sig .tc)
abbrev vo' : DevRef τ sig := Proc.devRef .tc (main_v21 : Ref sig .tc)
abbrev ℓx (d : Dev nD) : Loc nD τ sig := (SparseCore.T d).loc main_v0
abbrev ℓo (d : Dev nD) : Loc nD τ sig := (SparseCore.T d).loc main_v21

variable [FloatOps F]

/-- Row q of the transposed argument, held at contents f, is the tasks' pieces of it. -/
theorem x_pieces (d : Dev nD) (f : Buf (Elt F) (ℓx d)) :
    (ℓx d ↦[(Pieces.rowSet qK.val : Finset (Idx (ℓx d)))]{fullShare} f : sProp 𝕄)
      = bigSep Finset.univ fun c : Fin 2 => bigSep Finset.univ fun s : Fin 16 => bigSep (Finset.range 18) (TileB20.xP d (crd c s) f) := by
  rw [← Pieces.in_cover qK.val hq, pointsTo_biUnion _ _ (Pieces.in_disj qK.val hq), Pieces.bigSep_tris]
  refine bigSep_congr fun c _ => bigSep_congr fun s _ => bigSep_congr fun n _ => ?_
  unfold TileB20.xP
  by_cases h : TileB20.valid (crd c s) n
  · rw [if_pos h, if_pos (show Pieces.pnum (c, s, n) < 500 from (TileB20.valid_iff _ _).mp h)]
    show _ = ((TileB20.inM (crd c s) n).view.loc (TileB20.thr d (crd c s)) ↦[(TileB20.inM (crd c s) n).view.set]{fullShare} f)
    rw [show (TileB20.inM (crd c s) n).view.set = Pieces.inSet qK.val hq (c, s, n) from View.set_slice_whole _ _]
  · rw [if_neg h, if_neg (show ¬ Pieces.pnum (c, s, n) < 500 from fun h' => h ((TileB20.valid_iff _ _).mpr h'))]
    rfl

/-- Result q, held whole at contents g, is the tasks' pieces of it at g. -/
theorem o_pieces (d : Dev nD) (g : Buf (Elt F) (ℓo d)) :
    (ℓo d ↦{fullShare} g : sProp 𝕄)
      = bigSep Finset.univ fun c : Fin 2 => bigSep Finset.univ fun s : Fin 16 => bigSep (Finset.range 18) fun n =>
          if TileB20.valid (crd c s) n then
            ((TileB20.outM (crd c s) n).view.loc (TileB20.thr d (crd c s)) ↦[(TileB20.outM (crd c s) n).view.set]{fullShare} g : sProp 𝕄)
          else iprop(emp) := by
  show (ℓo d ↦[(Finset.univ : Finset (Idx (ℓo d)))]{fullShare} g : sProp 𝕄) = _
  rw [← Pieces.out_cover, pointsTo_biUnion _ _ Pieces.out_disj, Pieces.bigSep_tris]
  refine bigSep_congr fun c _ => bigSep_congr fun s _ => bigSep_congr fun n _ => ?_
  by_cases h : TileB20.valid (crd c s) n
  · rw [if_pos h, if_pos (show Pieces.pnum (c, s, n) < 500 from (TileB20.valid_iff _ _).mp h)]
    rw [show (TileB20.outM (crd c s) n).view.set = Pieces.outSet (c, s, n) from View.set_slice_whole _ _]
  · rw [if_neg h, if_neg (show ¬ Pieces.pnum (c, s, n) < 500 from fun h' => h ((TileB20.valid_iff _ _).mpr h'))]
    rfl

end Cert.Proof.CallB20

end
-- ==== Proof.LaunchStepB20.lean ====
/-
  One call of a copy kernel, run from the TensorCore: from the TensorCore's buffers held at a valuation whose transposed
  argument is the transpose, the call leaves them at the same valuation but for result q, which holds row q.
-/
import proofs.«206869_g37898791420194_cont_8to1_b_558_20_alg».proof.Proof.LaunchPB
import proofs.«206869_g37898791420194_cont_8to1_b_558_20_alg».proof.Proof.CallPiecesB20

noncomputable section

namespace Cert.Proof.CallB20

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic
open Idealize.ShloMosaic.StableHlo (tcRefs devRef_mem_tcRefs held_sub_split held_congr)
open Cert.Proof.Pieces (crd)
open Cert.Proof.LaunchKB (K D 𝒱 𝒱₀ v₀ EH P xt)

variable {F : FTy → Type}

local notation "𝕄" => MT nD τ sig (HIx 22) (Elt F) ℕ UU ℕ

variable (m : (ℓ : Loc nD τ sig) → Buf (Elt F) ℓ)
variable [FloatOps F]

/-- Result q held whole at some contents gives every task its pieces of it, each at some contents. -/
theorem o_pieces_ex (d : Dev nD) (g : Buf (Elt F) (ℓo d)) :
    (ℓo d ↦{fullShare} g : sProp 𝕄)
      ⊢ bigSep Finset.univ fun c : Fin 2 => bigSep Finset.univ fun s : Fin 16 => bigSep (Finset.range 18) (TileB20.oP (F := F) d (crd c s)) := by
  rw [o_pieces d g]
  refine bigSep_mono fun c _ => bigSep_mono fun s _ => bigSep_mono fun n _ => ?_
  unfold TileB20.oP
  by_cases h : TileB20.valid (crd c s) n
  · rw [if_pos h, if_pos h]
    exact exists_intro (Φ := fun f => (((TileB20.outM (crd c s) n).view.loc (TileB20.thr d (crd c s)) ↦[(TileB20.outM (crd c s) n).view.set]{fullShare} f : sProp 𝕄))) g
  · rw [if_neg h, if_neg h]; exact BI.Entails.refl _

/-- The tasks' pieces of result q, each holding row q of f, are result q whole holding that row. -/
theorem o_pieces_row (d : Dev nD) (f : Buf (Elt F) (ℓx d)) :
    (bigSep Finset.univ fun c : Fin 2 => bigSep Finset.univ fun s : Fin 16 => bigSep (Finset.range 18) (TileB20.oQ d (crd c s) f))
      = (ℓo d ↦{fullShare} (Cert.Spec.row qK f : Buf (Elt F) (ℓo d)) : sProp 𝕄) := by
  rw [o_pieces d (Cert.Spec.row qK f : Buf (Elt F) (ℓo d))]
  rfl

omit [FloatOps F] in
/-- A separating conjunction over the call's grid of vector subcores, or of SparseCores, is one over sixteen, or two. -/
theorem bigSep_castSub (Φ : Fin 16 → sProp 𝕄) :
    (bigSep Finset.univ fun i : Fin ((K (F := F)).nSub qK) => Φ (i.cast (LaunchKB.nSub_eq qK))) = bigSep Finset.univ Φ :=
  bigSep_congr fun _ _ => congrArg Φ (Fin.ext rfl)
omit [FloatOps F] in
theorem bigSep_castCore (Φ : Fin 2 → sProp 𝕄) :
    (bigSep Finset.univ fun c : Fin ((K (F := F)).nCore qK) => Φ (c.cast (LaunchKB.nCore_eq qK))) = bigSep Finset.univ Φ :=
  bigSep_congr fun _ _ => congrArg Φ (Fin.ext rfl)

theorem goQ_eq (d : Dev nD) (c : Fin 2) (s : Fin 16) : LaunchKB.goQ m qK d c s = TileB20.goRes d (crd c s) (xt m d) := rfl
theorem tdQ_eq (d : Dev nD) (c : Fin 2) (s : Fin 16) : LaunchKB.tdQ m qK d c s = TileB20.tdRes d (crd c s) (xt m d) := rfl

/-- What the call takes for the two SparseCores: every task's pieces. -/
theorem st_eq (d : Dev nD) :
    (bigSep Finset.univ fun c : Fin ((K (F := F)).nCore qK) => (P m).st qK d c)
      = iprop((bigSep Finset.univ fun c : Fin 2 => bigSep Finset.univ fun s : Fin 16 => bigSep (Finset.range 18) (TileB20.xP d (crd c s) (xt m d)))
          ∗ (bigSep Finset.univ fun c : Fin 2 => bigSep Finset.univ fun s : Fin 16 => bigSep (Finset.range 18) (TileB20.oP (F := F) d (crd c s)))) := by
  have h1 : (bigSep Finset.univ fun c : Fin ((K (F := F)).nCore qK) => (P m).st qK d c)
      = bigSep Finset.univ fun c : Fin ((K (F := F)).nCore qK) =>
          (fun c' : Fin 2 => bigSep (Finset.univ : Finset (Fin 16)) fun s => LaunchKB.goQ m qK d c' s) (c.cast (LaunchKB.nCore_eq qK)) :=
    bigSep_congr fun c _ => bigSep_castSub (fun s => LaunchKB.goQ m qK d (c.cast (LaunchKB.nCore_eq qK)) s)
  rw [h1, bigSep_castCore (fun c' : Fin 2 => bigSep (Finset.univ : Finset (Fin 16)) fun s => LaunchKB.goQ m qK d c' s), ← bigSep_sep']
  refine bigSep_congr fun c _ => ?_
  rw [← bigSep_sep']
  refine bigSep_congr fun s _ => ?_
  rw [goQ_eq]; rfl

/-- What it hands back. -/
theorem dn_eq (d : Dev nD) :
    (bigSep Finset.univ fun c : Fin ((K (F := F)).nCore qK) => (P m).dn qK d c)
      = iprop((bigSep Finset.univ fun c : Fin 2 => bigSep Finset.univ fun s : Fin 16 => bigSep (Finset.range 18) (TileB20.xP d (crd c s) (xt m d)))
          ∗ (bigSep Finset.univ fun c : Fin 2 => bigSep Finset.univ fun s : Fin 16 => bigSep (Finset.range 18) (TileB20.oQ d (crd c s) (xt m d)))) := by
  have h1 : (bigSep Finset.univ fun c : Fin ((K (F := F)).nCore qK) => (P m).dn qK d c)
      = bigSep Finset.univ fun c : Fin ((K (F := F)).nCore qK) =>
          (fun c' : Fin 2 => bigSep (Finset.univ : Finset (Fin 16)) fun s => LaunchKB.tdQ m qK d c' s) (c.cast (LaunchKB.nCore_eq qK)) :=
    bigSep_congr fun c _ => bigSep_castSub (fun s => LaunchKB.tdQ m qK d (c.cast (LaunchKB.nCore_eq qK)) s)
  rw [h1, bigSep_castCore (fun c' : Fin 2 => bigSep (Finset.univ : Finset (Fin 16)) fun s => LaunchKB.tdQ m qK d c' s), ← bigSep_sep']
  refine bigSep_congr fun c _ => ?_
  rw [← bigSep_sep']
  refine bigSep_congr fun s _ => ?_
  rw [tdQ_eq]; rfl

omit [FloatOps F] in
theorem pair_sub : ({vx', vo'} : Finset (DevRef τ sig)) ⊆ tcRefs τ sig :=
  Finset.insert_subset (devRef_mem_tcRefs _) (Finset.singleton_subset_iff.mpr (devRef_mem_tcRefs _))

omit [FloatOps F] in
theorem held_pair (d : Dev nD) (V : Valuation τ sig (Elt F)) :
    (held (SparseCore.T d) ({vx', vo'} : Finset (DevRef τ sig)) V : sProp 𝕄) = iprop((ℓx d ↦{fullShare} V vx') ∗ (ℓo d ↦{fullShare} V vo')) := by
  unfold held; rw [SparseCore.bigSep_insert' (by decide), bigSep_singleton]

/-- What the call does to the TensorCore's buffers, as an operation on valuations: result q takes row q of the transpose. -/
abbrev opC (d : Dev nD) : HloOp τ sig (Elt F) := StableHlo.nullary main_v21 (Cert.Spec.row qK (xt m d))

/-- The call, from the TensorCore's buffers held at a valuation V whose transposed argument is the transpose: it
    leaves them at V but for result q, which holds row q of the transpose. -/
theorem step (κ : GSem nD τ sig → ℕ) (d : Dev nD) (V : Valuation τ sig (Elt F)) (hV : V vx' = xt m d) {Φ : PUnit → sProp 𝕄} :
    iprop((K (F := F)).ctx EH (P m) κ ∗ (K (F := F)).tcSt EH d qK.val ∗ held (SparseCore.T d) (tcRefs τ sig) V
        ∗ (((K (F := F)).tcSt EH d (qK.val + 1) ∗ held (SparseCore.T d) (tcRefs τ sig) ((opC m d).result V)) -∗ Φ ⟨⟩))
      ⊢ wp frame (wpE ((K (F := F)).defs (D (F := F))) 𝒱 (SparseCore.T d) none) Set.univ ((K (F := F)).run d qK) Φ := by
  rw [held_sub_split (SparseCore.T d) pair_sub V, held_pair, hV]
  iintro ⟨#Hctx, Hst, ⟨⟨Hx, Ho⟩, Hrest⟩, Hk⟩
  ihave Hx' := (pointsTo_split_subset (q := fullShare) (f := xt m d) (Finset.subset_univ (Pieces.rowSet qK.val : Finset (Idx (ℓx d))))).1 $$ Hx
  icases Hx' with ⟨Hrow, Hxrest⟩
  iapply ((K (F := F)).wp_run (D (F := F)) 𝒱 (EH := EH) (P := P m) κ d qK) $$ [Hst Hrow Ho Hk Hxrest Hrest]
  isplitr; · iexact Hctx
  isplitl [Hst]; · iexact Hst
  isplitl [Hrow Ho]
  · rw [st_eq]
    isplitl [Hrow]
    · iapply (Entails.of_eq (x_pieces d (xt m d))); iexact Hrow
    · iapply (o_pieces_ex d (V vo')); iexact Ho
  iintro ⟨Hst, Hdn⟩
  ihave Hdn' := (Entails.of_eq (dn_eq m d)) $$ Hdn
  icases Hdn' with ⟨Hrow, Ho⟩
  ihave Hrow' := (Entails.of_eq (x_pieces d (xt m d)).symm) $$ Hrow
  ihave Ho' := (Entails.of_eq (o_pieces_row d (xt m d))) $$ Ho
  ihave Hx := (pointsTo_split_subset (q := fullShare) (f := xt m d) (Finset.subset_univ (Pieces.rowSet qK.val : Finset (Idx (ℓx d))))).2 $$ [Hrow' Hxrest]
  · isplitl [Hrow']; · iexact Hrow'
    iexact Hxrest
  iapply Hk
  isplitl [Hst]; · iexact Hst
  rw [held_sub_split (SparseCore.T d) pair_sub ((opC m d).result V), held_pair,
    StableHlo.nullary_result_ne _ _ _ V (show (main_v0 : Ref sig .tc) ≠ main_v21 by decide), StableHlo.nullary_result, hV,
    held_congr (SparseCore.T d) (V := (opC m d).result V) (V' := V)
      (fun b hb => (opC m d).result_of_not_mem V (fun hw => (Finset.mem_sdiff.mp hb).2
        (Finset.mem_insert_of_mem (Finset.mem_singleton.mpr (Finset.mem_singleton.mp hw)))))]
  isplitl [Hx Ho']
  · isplitl [Hx]; · iexact Hx
    iexact Ho'
  · iexact Hrest

end Cert.Proof.CallB20

end
-- ==== Proof.CallPiecesB21.lean ====
/-
  The pieces of one call: row q of the transposed argument, held at some contents, is the 32 vector subcores' pieces of
  it; result q, held whole at some contents, is their pieces of it.
-/
import proofs.«206869_g37898791420194_cont_8to1_b_558_20_alg».proof.Proof.TileB21Defs
import proofs.«206869_g37898791420194_cont_8to1_b_558_20_alg».proof.Proof.LaunchPieces

noncomputable section

namespace Cert.Proof.CallB21

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic
open Cert.Proof.Pieces (crd)

variable {F : FTy → Type}

abbrev UU : Type := URounds (GSem nD τ sig) ℕ × Counters
local notation "𝕄" => MT nD τ sig (HIx 22) (Elt F) ℕ UU ℕ

/-- The call's number. -/
abbrev qK : Fin 22 := 21
theorem hq : qK.val < 22 := qK.isLt

abbrev vx' : DevRef τ sig := Proc.devRef .tc (main_v0 : Ref sig .tc)
abbrev vo' : DevRef τ sig := Proc.devRef .tc (main_v22 : Ref sig .tc)
abbrev ℓx (d : Dev nD) : Loc nD τ sig := (SparseCore.T d).loc main_v0
abbrev ℓo (d : Dev nD) : Loc nD τ sig := (SparseCore.T d).loc main_v22

variable [FloatOps F]

/-- Row q of the transposed argument, held at contents f, is the tasks' pieces of it. -/
theorem x_pieces (d : Dev nD) (f : Buf (Elt F) (ℓx d)) :
    (ℓx d ↦[(Pieces.rowSet qK.val : Finset (Idx (ℓx d)))]{fullShare} f : sProp 𝕄)
      = bigSep Finset.univ fun c : Fin 2 => bigSep Finset.univ fun s : Fin 16 => bigSep (Finset.range 18) (TileB21.xP d (crd c s) f) := by
  rw [← Pieces.in_cover qK.val hq, pointsTo_biUnion _ _ (Pieces.in_disj qK.val hq), Pieces.bigSep_tris]
  refine bigSep_congr fun c _ => bigSep_congr fun s _ => bigSep_congr fun n _ => ?_
  unfold TileB21.xP
  by_cases h : TileB21.valid (crd c s) n
  · rw [if_pos h, if_pos (show Pieces.pnum (c, s, n) < 500 from (TileB21.valid_iff _ _).mp h)]
    show _ = ((TileB21.inM (crd c s) n).view.loc (TileB21.thr d (crd c s)) ↦[(TileB21.inM (crd c s) n).view.set]{fullShare} f)
    rw [show (TileB21.inM (crd c s) n).view.set = Pieces.inSet qK.val hq (c, s, n) from View.set_slice_whole _ _]
  · rw [if_neg h, if_neg (show ¬ Pieces.pnum (c, s, n) < 500 from fun h' => h ((TileB21.valid_iff _ _).mpr h'))]
    rfl

/-- Result q, held whole at contents g, is the tasks' pieces of it at g. -/
theorem o_pieces (d : Dev nD) (g : Buf (Elt F) (ℓo d)) :
    (ℓo d ↦{fullShare} g : sProp 𝕄)
      = bigSep Finset.univ fun c : Fin 2 => bigSep Finset.univ fun s : Fin 16 => bigSep (Finset.range 18) fun n =>
          if TileB21.valid (crd c s) n then
            ((TileB21.outM (crd c s) n).view.loc (TileB21.thr d (crd c s)) ↦[(TileB21.outM (crd c s) n).view.set]{fullShare} g : sProp 𝕄)
          else iprop(emp) := by
  show (ℓo d ↦[(Finset.univ : Finset (Idx (ℓo d)))]{fullShare} g : sProp 𝕄) = _
  rw [← Pieces.out_cover, pointsTo_biUnion _ _ Pieces.out_disj, Pieces.bigSep_tris]
  refine bigSep_congr fun c _ => bigSep_congr fun s _ => bigSep_congr fun n _ => ?_
  by_cases h : TileB21.valid (crd c s) n
  · rw [if_pos h, if_pos (show Pieces.pnum (c, s, n) < 500 from (TileB21.valid_iff _ _).mp h)]
    rw [show (TileB21.outM (crd c s) n).view.set = Pieces.outSet (c, s, n) from View.set_slice_whole _ _]
  · rw [if_neg h, if_neg (show ¬ Pieces.pnum (c, s, n) < 500 from fun h' => h ((TileB21.valid_iff _ _).mpr h'))]
    rfl

end Cert.Proof.CallB21

end
-- ==== Proof.LaunchStepB21.lean ====
/-
  One call of a copy kernel, run from the TensorCore: from the TensorCore's buffers held at a valuation whose transposed
  argument is the transpose, the call leaves them at the same valuation but for result q, which holds row q.
-/
import proofs.«206869_g37898791420194_cont_8to1_b_558_20_alg».proof.Proof.LaunchPB
import proofs.«206869_g37898791420194_cont_8to1_b_558_20_alg».proof.Proof.CallPiecesB21

noncomputable section

namespace Cert.Proof.CallB21

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic
open Idealize.ShloMosaic.StableHlo (tcRefs devRef_mem_tcRefs held_sub_split held_congr)
open Cert.Proof.Pieces (crd)
open Cert.Proof.LaunchKB (K D 𝒱 𝒱₀ v₀ EH P xt)

variable {F : FTy → Type}

local notation "𝕄" => MT nD τ sig (HIx 22) (Elt F) ℕ UU ℕ

variable (m : (ℓ : Loc nD τ sig) → Buf (Elt F) ℓ)
variable [FloatOps F]

/-- Result q held whole at some contents gives every task its pieces of it, each at some contents. -/
theorem o_pieces_ex (d : Dev nD) (g : Buf (Elt F) (ℓo d)) :
    (ℓo d ↦{fullShare} g : sProp 𝕄)
      ⊢ bigSep Finset.univ fun c : Fin 2 => bigSep Finset.univ fun s : Fin 16 => bigSep (Finset.range 18) (TileB21.oP (F := F) d (crd c s)) := by
  rw [o_pieces d g]
  refine bigSep_mono fun c _ => bigSep_mono fun s _ => bigSep_mono fun n _ => ?_
  unfold TileB21.oP
  by_cases h : TileB21.valid (crd c s) n
  · rw [if_pos h, if_pos h]
    exact exists_intro (Φ := fun f => (((TileB21.outM (crd c s) n).view.loc (TileB21.thr d (crd c s)) ↦[(TileB21.outM (crd c s) n).view.set]{fullShare} f : sProp 𝕄))) g
  · rw [if_neg h, if_neg h]; exact BI.Entails.refl _

/-- The tasks' pieces of result q, each holding row q of f, are result q whole holding that row. -/
theorem o_pieces_row (d : Dev nD) (f : Buf (Elt F) (ℓx d)) :
    (bigSep Finset.univ fun c : Fin 2 => bigSep Finset.univ fun s : Fin 16 => bigSep (Finset.range 18) (TileB21.oQ d (crd c s) f))
      = (ℓo d ↦{fullShare} (Cert.Spec.row qK f : Buf (Elt F) (ℓo d)) : sProp 𝕄) := by
  rw [o_pieces d (Cert.Spec.row qK f : Buf (Elt F) (ℓo d))]
  rfl

omit [FloatOps F] in
/-- A separating conjunction over the call's grid of vector subcores, or of SparseCores, is one over sixteen, or two. -/
theorem bigSep_castSub (Φ : Fin 16 → sProp 𝕄) :
    (bigSep Finset.univ fun i : Fin ((K (F := F)).nSub qK) => Φ (i.cast (LaunchKB.nSub_eq qK))) = bigSep Finset.univ Φ :=
  bigSep_congr fun _ _ => congrArg Φ (Fin.ext rfl)
omit [FloatOps F] in
theorem bigSep_castCore (Φ : Fin 2 → sProp 𝕄) :
    (bigSep Finset.univ fun c : Fin ((K (F := F)).nCore qK) => Φ (c.cast (LaunchKB.nCore_eq qK))) = bigSep Finset.univ Φ :=
  bigSep_congr fun _ _ => congrArg Φ (Fin.ext rfl)

theorem goQ_eq (d : Dev nD) (c : Fin 2) (s : Fin 16) : LaunchKB.goQ m qK d c s = TileB21.goRes d (crd c s) (xt m d) := rfl
theorem tdQ_eq (d : Dev nD) (c : Fin 2) (s : Fin 16) : LaunchKB.tdQ m qK d c s = TileB21.tdRes d (crd c s) (xt m d) := rfl

/-- What the call takes for the two SparseCores: every task's pieces. -/
theorem st_eq (d : Dev nD) :
    (bigSep Finset.univ fun c : Fin ((K (F := F)).nCore qK) => (P m).st qK d c)
      = iprop((bigSep Finset.univ fun c : Fin 2 => bigSep Finset.univ fun s : Fin 16 => bigSep (Finset.range 18) (TileB21.xP d (crd c s) (xt m d)))
          ∗ (bigSep Finset.univ fun c : Fin 2 => bigSep Finset.univ fun s : Fin 16 => bigSep (Finset.range 18) (TileB21.oP (F := F) d (crd c s)))) := by
  have h1 : (bigSep Finset.univ fun c : Fin ((K (F := F)).nCore qK) => (P m).st qK d c)
      = bigSep Finset.univ fun c : Fin ((K (F := F)).nCore qK) =>
          (fun c' : Fin 2 => bigSep (Finset.univ : Finset (Fin 16)) fun s => LaunchKB.goQ m qK d c' s) (c.cast (LaunchKB.nCore_eq qK)) :=
    bigSep_congr fun c _ => bigSep_castSub (fun s => LaunchKB.goQ m qK d (c.cast (LaunchKB.nCore_eq qK)) s)
  rw [h1, bigSep_castCore (fun c' : Fin 2 => bigSep (Finset.univ : Finset (Fin 16)) fun s => LaunchKB.goQ m qK d c' s), ← bigSep_sep']
  refine bigSep_congr fun c _ => ?_
  rw [← bigSep_sep']
  refine bigSep_congr fun s _ => ?_
  rw [goQ_eq]; rfl

/-- What it hands back. -/
theorem dn_eq (d : Dev nD) :
    (bigSep Finset.univ fun c : Fin ((K (F := F)).nCore qK) => (P m).dn qK d c)
      = iprop((bigSep Finset.univ fun c : Fin 2 => bigSep Finset.univ fun s : Fin 16 => bigSep (Finset.range 18) (TileB21.xP d (crd c s) (xt m d)))
          ∗ (bigSep Finset.univ fun c : Fin 2 => bigSep Finset.univ fun s : Fin 16 => bigSep (Finset.range 18) (TileB21.oQ d (crd c s) (xt m d)))) := by
  have h1 : (bigSep Finset.univ fun c : Fin ((K (F := F)).nCore qK) => (P m).dn qK d c)
      = bigSep Finset.univ fun c : Fin ((K (F := F)).nCore qK) =>
          (fun c' : Fin 2 => bigSep (Finset.univ : Finset (Fin 16)) fun s => LaunchKB.tdQ m qK d c' s) (c.cast (LaunchKB.nCore_eq qK)) :=
    bigSep_congr fun c _ => bigSep_castSub (fun s => LaunchKB.tdQ m qK d (c.cast (LaunchKB.nCore_eq qK)) s)
  rw [h1, bigSep_castCore (fun c' : Fin 2 => bigSep (Finset.univ : Finset (Fin 16)) fun s => LaunchKB.tdQ m qK d c' s), ← bigSep_sep']
  refine bigSep_congr fun c _ => ?_
  rw [← bigSep_sep']
  refine bigSep_congr fun s _ => ?_
  rw [tdQ_eq]; rfl

omit [FloatOps F] in
theorem pair_sub : ({vx', vo'} : Finset (DevRef τ sig)) ⊆ tcRefs τ sig :=
  Finset.insert_subset (devRef_mem_tcRefs _) (Finset.singleton_subset_iff.mpr (devRef_mem_tcRefs _))

omit [FloatOps F] in
theorem held_pair (d : Dev nD) (V : Valuation τ sig (Elt F)) :
    (held (SparseCore.T d) ({vx', vo'} : Finset (DevRef τ sig)) V : sProp 𝕄) = iprop((ℓx d ↦{fullShare} V vx') ∗ (ℓo d ↦{fullShare} V vo')) := by
  unfold held; rw [SparseCore.bigSep_insert' (by decide), bigSep_singleton]

/-- What the call does to the TensorCore's buffers, as an operation on valuations: result q takes row q of the transpose. -/
abbrev opC (d : Dev nD) : HloOp τ sig (Elt F) := StableHlo.nullary main_v22 (Cert.Spec.row qK (xt m d))

/-- The call, from the TensorCore's buffers held at a valuation V whose transposed argument is the transpose: it
    leaves them at V but for result q, which holds row q of the transpose. -/
theorem step (κ : GSem nD τ sig → ℕ) (d : Dev nD) (V : Valuation τ sig (Elt F)) (hV : V vx' = xt m d) {Φ : PUnit → sProp 𝕄} :
    iprop((K (F := F)).ctx EH (P m) κ ∗ (K (F := F)).tcSt EH d qK.val ∗ held (SparseCore.T d) (tcRefs τ sig) V
        ∗ (((K (F := F)).tcSt EH d (qK.val + 1) ∗ held (SparseCore.T d) (tcRefs τ sig) ((opC m d).result V)) -∗ Φ ⟨⟩))
      ⊢ wp frame (wpE ((K (F := F)).defs (D (F := F))) 𝒱 (SparseCore.T d) none) Set.univ ((K (F := F)).run d qK) Φ := by
  rw [held_sub_split (SparseCore.T d) pair_sub V, held_pair, hV]
  iintro ⟨#Hctx, Hst, ⟨⟨Hx, Ho⟩, Hrest⟩, Hk⟩
  ihave Hx' := (pointsTo_split_subset (q := fullShare) (f := xt m d) (Finset.subset_univ (Pieces.rowSet qK.val : Finset (Idx (ℓx d))))).1 $$ Hx
  icases Hx' with ⟨Hrow, Hxrest⟩
  iapply ((K (F := F)).wp_run (D (F := F)) 𝒱 (EH := EH) (P := P m) κ d qK) $$ [Hst Hrow Ho Hk Hxrest Hrest]
  isplitr; · iexact Hctx
  isplitl [Hst]; · iexact Hst
  isplitl [Hrow Ho]
  · rw [st_eq]
    isplitl [Hrow]
    · iapply (Entails.of_eq (x_pieces d (xt m d))); iexact Hrow
    · iapply (o_pieces_ex d (V vo')); iexact Ho
  iintro ⟨Hst, Hdn⟩
  ihave Hdn' := (Entails.of_eq (dn_eq m d)) $$ Hdn
  icases Hdn' with ⟨Hrow, Ho⟩
  ihave Hrow' := (Entails.of_eq (x_pieces d (xt m d)).symm) $$ Hrow
  ihave Ho' := (Entails.of_eq (o_pieces_row d (xt m d))) $$ Ho
  ihave Hx := (pointsTo_split_subset (q := fullShare) (f := xt m d) (Finset.subset_univ (Pieces.rowSet qK.val : Finset (Idx (ℓx d))))).2 $$ [Hrow' Hxrest]
  · isplitl [Hrow']; · iexact Hrow'
    iexact Hxrest
  iapply Hk
  isplitl [Hst]; · iexact Hst
  rw [held_sub_split (SparseCore.T d) pair_sub ((opC m d).result V), held_pair,
    StableHlo.nullary_result_ne _ _ _ V (show (main_v0 : Ref sig .tc) ≠ main_v22 by decide), StableHlo.nullary_result, hV,
    held_congr (SparseCore.T d) (V := (opC m d).result V) (V' := V)
      (fun b hb => (opC m d).result_of_not_mem V (fun hw => (Finset.mem_sdiff.mp hb).2
        (Finset.mem_insert_of_mem (Finset.mem_singleton.mpr (Finset.mem_singleton.mp hw)))))]
  isplitl [Hx Ho']
  · isplitl [Hx]; · iexact Hx
    iexact Ho'
  · iexact Hrest

end Cert.Proof.CallB21

end
-- ==== Proof.LaunchKB.lean ====
/-
  The launch of the 22 copy kernels, last part: @main on the TensorCore — the transpose, the 22 calls, the 22
  reshapes — over the TensorCore's buffers held at a valuation; what the final memory says; the run.
-/
import proofs.«206869_g37898791420194_cont_8to1_b_558_20_alg».proof.Proof.LaunchPB
import proofs.«206869_g37898791420194_cont_8to1_b_558_20_alg».proof.Proof.LaunchOblB
import proofs.«206869_g37898791420194_cont_8to1_b_558_20_alg».proof.Proof.LaunchValueB
import proofs.«206869_g37898791420194_cont_8to1_b_558_20_alg».proof.Proof.LaunchStepB0
import proofs.«206869_g37898791420194_cont_8to1_b_558_20_alg».proof.Proof.LaunchStepB1
import proofs.«206869_g37898791420194_cont_8to1_b_558_20_alg».proof.Proof.LaunchStepB2
import proofs.«206869_g37898791420194_cont_8to1_b_558_20_alg».proof.Proof.LaunchStepB3
import proofs.«206869_g37898791420194_cont_8to1_b_558_20_alg».proof.Proof.LaunchStepB4
import proofs.«206869_g37898791420194_cont_8to1_b_558_20_alg».proof.Proof.LaunchStepB5
import proofs.«206869_g37898791420194_cont_8to1_b_558_20_alg».proof.Proof.LaunchStepB6
import proofs.«206869_g37898791420194_cont_8to1_b_558_20_alg».proof.Proof.LaunchStepB7
import proofs.«206869_g37898791420194_cont_8to1_b_558_20_alg».proof.Proof.LaunchStepB8
import proofs.«206869_g37898791420194_cont_8to1_b_558_20_alg».proof.Proof.LaunchStepB9
import proofs.«206869_g37898791420194_cont_8to1_b_558_20_alg».proof.Proof.LaunchStepB10
import proofs.«206869_g37898791420194_cont_8to1_b_558_20_alg».proof.Proof.LaunchStepB11
import proofs.«206869_g37898791420194_cont_8to1_b_558_20_alg».proof.Proof.LaunchStepB12
import proofs.«206869_g37898791420194_cont_8to1_b_558_20_alg».proof.Proof.LaunchStepB13
import proofs.«206869_g37898791420194_cont_8to1_b_558_20_alg».proof.Proof.LaunchStepB14
import proofs.«206869_g37898791420194_cont_8to1_b_558_20_alg».proof.Proof.LaunchStepB15
import proofs.«206869_g37898791420194_cont_8to1_b_558_20_alg».proof.Proof.LaunchStepB16
import proofs.«206869_g37898791420194_cont_8to1_b_558_20_alg».proof.Proof.LaunchStepB17
import proofs.«206869_g37898791420194_cont_8to1_b_558_20_alg».proof.Proof.LaunchStepB18
import proofs.«206869_g37898791420194_cont_8to1_b_558_20_alg».proof.Proof.LaunchStepB19
import proofs.«206869_g37898791420194_cont_8to1_b_558_20_alg».proof.Proof.LaunchStepB20
import proofs.«206869_g37898791420194_cont_8to1_b_558_20_alg».proof.Proof.LaunchStepB21

noncomputable section

namespace Cert.Proof.LaunchKB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic
open Idealize.ShloMosaic.StableHlo (tcRefs devRef_mem_tcRefs)

variable {F : FTy → Type}

local notation "𝕄" => MT nD τ sig (HIx 22) (Elt F) ℕ UU ℕ

variable (m : (ℓ : Loc nD τ sig) → Buf (Elt F) ℓ) (ρ : Dev nD → PrngReg)
variable [FloatOps F]

/-! ## The TensorCore's buffers, as valuations along @main -/

abbrev opT : HloOp τ sig (Elt F) :=
  StableHlo.unary main_arg0 main_v0 ((transpose S22x1600000 [1, 0] · transposes_S1600000x22_S22x1600000_1_0) : (⟨S1600000x22, .f32⟩ : BufTy).Contents (Elt F) → (⟨S22x1600000, .f32⟩ : BufTy).Contents (Elt F))
abbrev opR0 : HloOp τ sig (Elt F) := StableHlo.reshape main_v1 main_v23 rfl shapeCasts_S1600000_S1600000x1
abbrev opR1 : HloOp τ sig (Elt F) := StableHlo.reshape main_v2 main_v24 rfl shapeCasts_S1600000_S1600000x1
abbrev opR2 : HloOp τ sig (Elt F) := StableHlo.reshape main_v3 main_v25 rfl shapeCasts_S1600000_S1600000x1
abbrev opR3 : HloOp τ sig (Elt F) := StableHlo.reshape main_v4 main_v26 rfl shapeCasts_S1600000_S1600000x1
abbrev opR4 : HloOp τ sig (Elt F) := StableHlo.reshape main_v5 main_v27 rfl shapeCasts_S1600000_S1600000x1
abbrev opR5 : HloOp τ sig (Elt F) := StableHlo.reshape main_v6 main_v28 rfl shapeCasts_S1600000_S1600000x1
abbrev opR6 : HloOp τ sig (Elt F) := StableHlo.reshape main_v7 main_v29 rfl shapeCasts_S1600000_S1600000x1
abbrev opR7 : HloOp τ sig (Elt F) := StableHlo.reshape main_v8 main_v30 rfl shapeCasts_S1600000_S1600000x1
abbrev opR8 : HloOp τ sig (Elt F) := StableHlo.reshape main_v9 main_v31 rfl shapeCasts_S1600000_S1600000x1
abbrev opR9 : HloOp τ sig (Elt F) := StableHlo.reshape main_v10 main_v32 rfl shapeCasts_S1600000_S1600000x1
abbrev opR10 : HloOp τ sig (Elt F) := StableHlo.reshape main_v11 main_v33 rfl shapeCasts_S1600000_S1600000x1
abbrev opR11 : HloOp τ sig (Elt F) := StableHlo.reshape main_v12 main_v34 rfl shapeCasts_S1600000_S1600000x1
abbrev opR12 : HloOp τ sig (Elt F) := StableHlo.reshape main_v13 main_v35 rfl shapeCasts_S1600000_S1600000x1
abbrev opR13 : HloOp τ sig (Elt F) := StableHlo.reshape main_v14 main_v36 rfl shapeCasts_S1600000_S1600000x1
abbrev opR14 : HloOp τ sig (Elt F) := StableHlo.reshape main_v15 main_v37 rfl shapeCasts_S1600000_S1600000x1
abbrev opR15 : HloOp τ sig (Elt F) := StableHlo.reshape main_v16 main_v38 rfl shapeCasts_S1600000_S1600000x1
abbrev opR16 : HloOp τ sig (Elt F) := StableHlo.reshape main_v17 main_v39 rfl shapeCasts_S1600000_S1600000x1
abbrev opR17 : HloOp τ sig (Elt F) := StableHlo.reshape main_v18 main_v40 rfl shapeCasts_S1600000_S1600000x1
abbrev opR18 : HloOp τ sig (Elt F) := StableHlo.reshape main_v19 main_v41 rfl shapeCasts_S1600000_S1600000x1
abbrev opR19 : HloOp τ sig (Elt F) := StableHlo.reshape main_v20 main_v42 rfl shapeCasts_S1600000_S1600000x1
abbrev opR20 : HloOp τ sig (Elt F) := StableHlo.reshape main_v21 main_v43 rfl shapeCasts_S1600000_S1600000x1
abbrev opR21 : HloOp τ sig (Elt F) := StableHlo.reshape main_v22 main_v44 rfl shapeCasts_S1600000_S1600000x1

/-- The launch contents; after the transpose; after call q; after reshape q. -/
def V0 (d : Dev nD) : Valuation τ sig (Elt F) := fun b => m (d, b)
def Vt (d : Dev nD) : Valuation τ sig (Elt F) := (opT (F := F)).result (V0 m d)
def Vc0 (d : Dev nD) : Valuation τ sig (Elt F) := (CallB0.opC m d).result (Vt m d)
def Vc1 (d : Dev nD) : Valuation τ sig (Elt F) := (CallB1.opC m d).result (Vc0 m d)
def Vc2 (d : Dev nD) : Valuation τ sig (Elt F) := (CallB2.opC m d).result (Vc1 m d)
def Vc3 (d : Dev nD) : Valuation τ sig (Elt F) := (CallB3.opC m d).result (Vc2 m d)
def Vc4 (d : Dev nD) : Valuation τ sig (Elt F) := (CallB4.opC m d).result (Vc3 m d)
def Vc5 (d : Dev nD) : Valuation τ sig (Elt F) := (CallB5.opC m d).result (Vc4 m d)
def Vc6 (d : Dev nD) : Valuation τ sig (Elt F) := (CallB6.opC m d).result (Vc5 m d)
def Vc7 (d : Dev nD) : Valuation τ sig (Elt F) := (CallB7.opC m d).result (Vc6 m d)
def Vc8 (d : Dev nD) : Valuation τ sig (Elt F) := (CallB8.opC m d).result (Vc7 m d)
def Vc9 (d : Dev nD) : Valuation τ sig (Elt F) := (CallB9.opC m d).result (Vc8 m d)
def Vc10 (d : Dev nD) : Valuation τ sig (Elt F) := (CallB10.opC m d).result (Vc9 m d)
def Vc11 (d : Dev nD) : Valuation τ sig (Elt F) := (CallB11.opC m d).result (Vc10 m d)
def Vc12 (d : Dev nD) : Valuation τ sig (Elt F) := (CallB12.opC m d).result (Vc11 m d)
def Vc13 (d : Dev nD) : Valuation τ sig (Elt F) := (CallB13.opC m d).result (Vc12 m d)
def Vc14 (d : Dev nD) : Valuation τ sig (Elt F) := (CallB14.opC m d).result (Vc13 m d)
def Vc15 (d : Dev nD) : Valuation τ sig (Elt F) := (CallB15.opC m d).result (Vc14 m d)
def Vc16 (d : Dev nD) : Valuation τ sig (Elt F) := (CallB16.opC m d).result (Vc15 m d)
def Vc17 (d : Dev nD) : Valuation τ sig (Elt F) := (CallB17.opC m d).result (Vc16 m d)
def Vc18 (d : Dev nD) : Valuation τ sig (Elt F) := (CallB18.opC m d).result (Vc17 m d)
def Vc19 (d : Dev nD) : Valuation τ sig (Elt F) := (CallB19.opC m d).result (Vc18 m d)
def Vc20 (d : Dev nD) : Valuation τ sig (Elt F) := (CallB20.opC m d).result (Vc19 m d)
def Vc21 (d : Dev nD) : Valuation τ sig (Elt F) := (CallB21.opC m d).result (Vc20 m d)
def Vr0 (d : Dev nD) : Valuation τ sig (Elt F) := (opR0 (F := F)).result (Vc21 m d)
def Vr1 (d : Dev nD) : Valuation τ sig (Elt F) := (opR1 (F := F)).result (Vr0 m d)
def Vr2 (d : Dev nD) : Valuation τ sig (Elt F) := (opR2 (F := F)).result (Vr1 m d)
def Vr3 (d : Dev nD) : Valuation τ sig (Elt F) := (opR3 (F := F)).result (Vr2 m d)
def Vr4 (d : Dev nD) : Valuation τ sig (Elt F) := (opR4 (F := F)).result (Vr3 m d)
def Vr5 (d : Dev nD) : Valuation τ sig (Elt F) := (opR5 (F := F)).result (Vr4 m d)
def Vr6 (d : Dev nD) : Valuation τ sig (Elt F) := (opR6 (F := F)).result (Vr5 m d)
def Vr7 (d : Dev nD) : Valuation τ sig (Elt F) := (opR7 (F := F)).result (Vr6 m d)
def Vr8 (d : Dev nD) : Valuation τ sig (Elt F) := (opR8 (F := F)).result (Vr7 m d)
def Vr9 (d : Dev nD) : Valuation τ sig (Elt F) := (opR9 (F := F)).result (Vr8 m d)
def Vr10 (d : Dev nD) : Valuation τ sig (Elt F) := (opR10 (F := F)).result (Vr9 m d)
def Vr11 (d : Dev nD) : Valuation τ sig (Elt F) := (opR11 (F := F)).result (Vr10 m d)
def Vr12 (d : Dev nD) : Valuation τ sig (Elt F) := (opR12 (F := F)).result (Vr11 m d)
def Vr13 (d : Dev nD) : Valuation τ sig (Elt F) := (opR13 (F := F)).result (Vr12 m d)
def Vr14 (d : Dev nD) : Valuation τ sig (Elt F) := (opR14 (F := F)).result (Vr13 m d)
def Vr15 (d : Dev nD) : Valuation τ sig (Elt F) := (opR15 (F := F)).result (Vr14 m d)
def Vr16 (d : Dev nD) : Valuation τ sig (Elt F) := (opR16 (F := F)).result (Vr15 m d)
def Vr17 (d : Dev nD) : Valuation τ sig (Elt F) := (opR17 (F := F)).result (Vr16 m d)
def Vr18 (d : Dev nD) : Valuation τ sig (Elt F) := (opR18 (F := F)).result (Vr17 m d)
def Vr19 (d : Dev nD) : Valuation τ sig (Elt F) := (opR19 (F := F)).result (Vr18 m d)
def Vr20 (d : Dev nD) : Valuation τ sig (Elt F) := (opR20 (F := F)).result (Vr19 m d)
def Vr21 (d : Dev nD) : Valuation τ sig (Elt F) := (opR21 (F := F)).result (Vr20 m d)

/-- The transposed argument's buffer holds the transpose from the first line on: no call writes it. -/
theorem Vt_vx (d : Dev nD) : Vt m d CallB0.vx' = xt m d := StableHlo.unary_result _ _ _ _ _ _
theorem Vc0_vx (d : Dev nD) : Vc0 m d CallB0.vx' = xt m d :=
  (StableHlo.nullary_result_ne _ _ _ _ (show (main_v0 : Ref sig .tc) ≠ main_v1 by decide)).trans (Vt_vx m d)
theorem Vc1_vx (d : Dev nD) : Vc1 m d CallB0.vx' = xt m d :=
  (StableHlo.nullary_result_ne _ _ _ _ (show (main_v0 : Ref sig .tc) ≠ main_v2 by decide)).trans (Vc0_vx m d)
theorem Vc2_vx (d : Dev nD) : Vc2 m d CallB0.vx' = xt m d :=
  (StableHlo.nullary_result_ne _ _ _ _ (show (main_v0 : Ref sig .tc) ≠ main_v3 by decide)).trans (Vc1_vx m d)
theorem Vc3_vx (d : Dev nD) : Vc3 m d CallB0.vx' = xt m d :=
  (StableHlo.nullary_result_ne _ _ _ _ (show (main_v0 : Ref sig .tc) ≠ main_v4 by decide)).trans (Vc2_vx m d)
theorem Vc4_vx (d : Dev nD) : Vc4 m d CallB0.vx' = xt m d :=
  (StableHlo.nullary_result_ne _ _ _ _ (show (main_v0 : Ref sig .tc) ≠ main_v5 by decide)).trans (Vc3_vx m d)
theorem Vc5_vx (d : Dev nD) : Vc5 m d CallB0.vx' = xt m d :=
  (StableHlo.nullary_result_ne _ _ _ _ (show (main_v0 : Ref sig .tc) ≠ main_v6 by decide)).trans (Vc4_vx m d)
theorem Vc6_vx (d : Dev nD) : Vc6 m d CallB0.vx' = xt m d :=
  (StableHlo.nullary_result_ne _ _ _ _ (show (main_v0 : Ref sig .tc) ≠ main_v7 by decide)).trans (Vc5_vx m d)
theorem Vc7_vx (d : Dev nD) : Vc7 m d CallB0.vx' = xt m d :=
  (StableHlo.nullary_result_ne _ _ _ _ (show (main_v0 : Ref sig .tc) ≠ main_v8 by decide)).trans (Vc6_vx m d)
theorem Vc8_vx (d : Dev nD) : Vc8 m d CallB0.vx' = xt m d :=
  (StableHlo.nullary_result_ne _ _ _ _ (show (main_v0 : Ref sig .tc) ≠ main_v9 by decide)).trans (Vc7_vx m d)
theorem Vc9_vx (d : Dev nD) : Vc9 m d CallB0.vx' = xt m d :=
  (StableHlo.nullary_result_ne _ _ _ _ (show (main_v0 : Ref sig .tc) ≠ main_v10 by decide)).trans (Vc8_vx m d)
theorem Vc10_vx (d : Dev nD) : Vc10 m d CallB0.vx' = xt m d :=
  (StableHlo.nullary_result_ne _ _ _ _ (show (main_v0 : Ref sig .tc) ≠ main_v11 by decide)).trans (Vc9_vx m d)
theorem Vc11_vx (d : Dev nD) : Vc11 m d CallB0.vx' = xt m d :=
  (StableHlo.nullary_result_ne _ _ _ _ (show (main_v0 : Ref sig .tc) ≠ main_v12 by decide)).trans (Vc10_vx m d)
theorem Vc12_vx (d : Dev nD) : Vc12 m d CallB0.vx' = xt m d :=
  (StableHlo.nullary_result_ne _ _ _ _ (show (main_v0 : Ref sig .tc) ≠ main_v13 by decide)).trans (Vc11_vx m d)
theorem Vc13_vx (d : Dev nD) : Vc13 m d CallB0.vx' = xt m d :=
  (StableHlo.nullary_result_ne _ _ _ _ (show (main_v0 : Ref sig .tc) ≠ main_v14 by decide)).trans (Vc12_vx m d)
theorem Vc14_vx (d : Dev nD) : Vc14 m d CallB0.vx' = xt m d :=
  (StableHlo.nullary_result_ne _ _ _ _ (show (main_v0 : Ref sig .tc) ≠ main_v15 by decide)).trans (Vc13_vx m d)
theorem Vc15_vx (d : Dev nD) : Vc15 m d CallB0.vx' = xt m d :=
  (StableHlo.nullary_result_ne _ _ _ _ (show (main_v0 : Ref sig .tc) ≠ main_v16 by decide)).trans (Vc14_vx m d)
theorem Vc16_vx (d : Dev nD) : Vc16 m d CallB0.vx' = xt m d :=
  (StableHlo.nullary_result_ne _ _ _ _ (show (main_v0 : Ref sig .tc) ≠ main_v17 by decide)).trans (Vc15_vx m d)
theorem Vc17_vx (d : Dev nD) : Vc17 m d CallB0.vx' = xt m d :=
  (StableHlo.nullary_result_ne _ _ _ _ (show (main_v0 : Ref sig .tc) ≠ main_v18 by decide)).trans (Vc16_vx m d)
theorem Vc18_vx (d : Dev nD) : Vc18 m d CallB0.vx' = xt m d :=
  (StableHlo.nullary_result_ne _ _ _ _ (show (main_v0 : Ref sig .tc) ≠ main_v19 by decide)).trans (Vc17_vx m d)
theorem Vc19_vx (d : Dev nD) : Vc19 m d CallB0.vx' = xt m d :=
  (StableHlo.nullary_result_ne _ _ _ _ (show (main_v0 : Ref sig .tc) ≠ main_v20 by decide)).trans (Vc18_vx m d)
theorem Vc20_vx (d : Dev nD) : Vc20 m d CallB0.vx' = xt m d :=
  (StableHlo.nullary_result_ne _ _ _ _ (show (main_v0 : Ref sig .tc) ≠ main_v21 by decide)).trans (Vc19_vx m d)
theorem Vc21_vx (d : Dev nD) : Vc21 m d CallB0.vx' = xt m d :=
  (StableHlo.nullary_result_ne _ _ _ _ (show (main_v0 : Ref sig .tc) ≠ main_v22 by decide)).trans (Vc20_vx m d)

omit [FloatOps F] in
theorem unscoped_held (d : Dev nD) :
    (unscopedBufs d (fun b => m ((SparseCore.T d).loc b)) : sProp 𝕄) = held (SparseCore.T d) (tcRefs τ sig) (V0 m d) := by
  unfold unscopedBufs
  rw [show (Finset.univ.filter fun b : Ref sig .tc => ¬ b.isScoped) = Finset.univ by decide]
  unfold held tcRefs; rw [bigSep_map]; rfl

/-- What @main leaves the claim: every buffer of the TensorCore at the last valuation. -/
abbrev FIN (d : Dev nD) : sProp 𝕄 := held (SparseCore.T d) (tcRefs τ sig) (Vr21 m d)

set_option maxRecDepth 8192 in
/-- @main on device d's TensorCore: the transpose, the 22 calls, the 22 reshapes. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 22 ∗ FIN m d) := by
  unfold SparseCore.Cfg.tcRes
  rw [unscoped_held]
  simp only [main, wp_bind, wp_pure]
  iintro ⟨#Hctx, Hst, ⟨Hb, Hheld, -, -⟩, -⟩
  iapply (wp_hlo_within 𝒱 (SparseCore.T d) none Set.univ (op := opT) (S := tcRefs τ sig) (StableHlo.unary_bufs_sub ..) (V := V0 m d)) $$ [Hb Hheld]
  · isplitl [Hb]; · iexact Hb
    iexact Hheld
  iintro ⟨Hb, Hheld⟩
  rw [wp_ret]; imodintro
  iapply (CallB0.step m κ d (Vt m d) (Vt_vx m d)) $$ [Hst Hheld Hb]
  isplitr; · iexact Hctx
  isplitl [Hst]; · iexact Hst
  isplitl [Hheld]; · iexact Hheld
  iintro ⟨Hst, Hheld⟩
  iapply (CallB1.step m κ d (Vc0 m d) (Vc0_vx m d)) $$ [Hst Hheld Hb]
  isplitr; · iexact Hctx
  isplitl [Hst]; · iexact Hst
  isplitl [Hheld]; · iexact Hheld
  iintro ⟨Hst, Hheld⟩
  iapply (CallB2.step m κ d (Vc1 m d) (Vc1_vx m d)) $$ [Hst Hheld Hb]
  isplitr; · iexact Hctx
  isplitl [Hst]; · iexact Hst
  isplitl [Hheld]; · iexact Hheld
  iintro ⟨Hst, Hheld⟩
  iapply (CallB3.step m κ d (Vc2 m d) (Vc2_vx m d)) $$ [Hst Hheld Hb]
  isplitr; · iexact Hctx
  isplitl [Hst]; · iexact Hst
  isplitl [Hheld]; · iexact Hheld
  iintro ⟨Hst, Hheld⟩
  iapply (CallB4.step m κ d (Vc3 m d) (Vc3_vx m d)) $$ [Hst Hheld Hb]
  isplitr; · iexact Hctx
  isplitl [Hst]; · iexact Hst
  isplitl [Hheld]; · iexact Hheld
  iintro ⟨Hst, Hheld⟩
  iapply (CallB5.step m κ d (Vc4 m d) (Vc4_vx m d)) $$ [Hst Hheld Hb]
  isplitr; · iexact Hctx
  isplitl [Hst]; · iexact Hst
  isplitl [Hheld]; · iexact Hheld
  iintro ⟨Hst, Hheld⟩
  iapply (CallB6.step m κ d (Vc5 m d) (Vc5_vx m d)) $$ [Hst Hheld Hb]
  isplitr; · iexact Hctx
  isplitl [Hst]; · iexact Hst
  isplitl [Hheld]; · iexact Hheld
  iintro ⟨Hst, Hheld⟩
  iapply (CallB7.step m κ d (Vc6 m d) (Vc6_vx m d)) $$ [Hst Hheld Hb]
  isplitr; · iexact Hctx
  isplitl [Hst]; · iexact Hst
  isplitl [Hheld]; · iexact Hheld
  iintro ⟨Hst, Hheld⟩
  iapply (CallB8.step m κ d (Vc7 m d) (Vc7_vx m d)) $$ [Hst Hheld Hb]
  isplitr; · iexact Hctx
  isplitl [Hst]; · iexact Hst
  isplitl [Hheld]; · iexact Hheld
  iintro ⟨Hst, Hheld⟩
  iapply (CallB9.step m κ d (Vc8 m d) (Vc8_vx m d)) $$ [Hst Hheld Hb]
  isplitr; · iexact Hctx
  isplitl [Hst]; · iexact Hst
  isplitl [Hheld]; · iexact Hheld
  iintro ⟨Hst, Hheld⟩
  iapply (CallB10.step m κ d (Vc9 m d) (Vc9_vx m d)) $$ [Hst Hheld Hb]
  isplitr; · iexact Hctx
  isplitl [Hst]; · iexact Hst
  isplitl [Hheld]; · iexact Hheld
  iintro ⟨Hst, Hheld⟩
  iapply (CallB11.step m κ d (Vc10 m d) (Vc10_vx m d)) $$ [Hst Hheld Hb]
  isplitr; · iexact Hctx
  isplitl [Hst]; · iexact Hst
  isplitl [Hheld]; · iexact Hheld
  iintro ⟨Hst, Hheld⟩
  iapply (CallB12.step m κ d (Vc11 m d) (Vc11_vx m d)) $$ [Hst Hheld Hb]
  isplitr; · iexact Hctx
  isplitl [Hst]; · iexact Hst
  isplitl [Hheld]; · iexact Hheld
  iintro ⟨Hst, Hheld⟩
  iapply (CallB13.step m κ d (Vc12 m d) (Vc12_vx m d)) $$ [Hst Hheld Hb]
  isplitr; · iexact Hctx
  isplitl [Hst]; · iexact Hst
  isplitl [Hheld]; · iexact Hheld
  iintro ⟨Hst, Hheld⟩
  iapply (CallB14.step m κ d (Vc13 m d) (Vc13_vx m d)) $$ [Hst Hheld Hb]
  isplitr; · iexact Hctx
  isplitl [Hst]; · iexact Hst
  isplitl [Hheld]; · iexact Hheld
  iintro ⟨Hst, Hheld⟩
  iapply (CallB15.step m κ d (Vc14 m d) (Vc14_vx m d)) $$ [Hst Hheld Hb]
  isplitr; · iexact Hctx
  isplitl [Hst]; · iexact Hst
  isplitl [Hheld]; · iexact Hheld
  iintro ⟨Hst, Hheld⟩
  iapply (CallB16.step m κ d (Vc15 m d) (Vc15_vx m d)) $$ [Hst Hheld Hb]
  isplitr; · iexact Hctx
  isplitl [Hst]; · iexact Hst
  isplitl [Hheld]; · iexact Hheld
  iintro ⟨Hst, Hheld⟩
  iapply (CallB17.step m κ d (Vc16 m d) (Vc16_vx m d)) $$ [Hst Hheld Hb]
  isplitr; · iexact Hctx
  isplitl [Hst]; · iexact Hst
  isplitl [Hheld]; · iexact Hheld
  iintro ⟨Hst, Hheld⟩
  iapply (CallB18.step m κ d (Vc17 m d) (Vc17_vx m d)) $$ [Hst Hheld Hb]
  isplitr; · iexact Hctx
  isplitl [Hst]; · iexact Hst
  isplitl [Hheld]; · iexact Hheld
  iintro ⟨Hst, Hheld⟩
  iapply (CallB19.step m κ d (Vc18 m d) (Vc18_vx m d)) $$ [Hst Hheld Hb]
  isplitr; · iexact Hctx
  isplitl [Hst]; · iexact Hst
  isplitl [Hheld]; · iexact Hheld
  iintro ⟨Hst, Hheld⟩
  iapply (CallB20.step m κ d (Vc19 m d) (Vc19_vx m d)) $$ [Hst Hheld Hb]
  isplitr; · iexact Hctx
  isplitl [Hst]; · iexact Hst
  isplitl [Hheld]; · iexact Hheld
  iintro ⟨Hst, Hheld⟩
  iapply (CallB21.step m κ d (Vc20 m d) (Vc20_vx m d)) $$ [Hst Hheld Hb]
  isplitr; · iexact Hctx
  isplitl [Hst]; · iexact Hst
  isplitl [Hheld]; · iexact Hheld
  iintro ⟨Hst, Hheld⟩
  iapply (wp_hlo_within 𝒱 (SparseCore.T d) none Set.univ (op := opR0) (S := tcRefs τ sig) (StableHlo.reshape_bufs_sub ..) (V := Vc21 m d)) $$ [Hb Hheld]
  · isplitl [Hb]; · iexact Hb
    iexact Hheld
  iintro ⟨Hb, Hheld⟩
  rw [wp_ret]; imodintro
  iapply (wp_hlo_within 𝒱 (SparseCore.T d) none Set.univ (op := opR1) (S := tcRefs τ sig) (StableHlo.reshape_bufs_sub ..) (V := Vr0 m d)) $$ [Hb Hheld]
  · isplitl [Hb]; · iexact Hb
    iexact Hheld
  iintro ⟨Hb, Hheld⟩
  rw [wp_ret]; imodintro
  iapply (wp_hlo_within 𝒱 (SparseCore.T d) none Set.univ (op := opR2) (S := tcRefs τ sig) (StableHlo.reshape_bufs_sub ..) (V := Vr1 m d)) $$ [Hb Hheld]
  · isplitl [Hb]; · iexact Hb
    iexact Hheld
  iintro ⟨Hb, Hheld⟩
  rw [wp_ret]; imodintro
  iapply (wp_hlo_within 𝒱 (SparseCore.T d) none Set.univ (op := opR3) (S := tcRefs τ sig) (StableHlo.reshape_bufs_sub ..) (V := Vr2 m d)) $$ [Hb Hheld]
  · isplitl [Hb]; · iexact Hb
    iexact Hheld
  iintro ⟨Hb, Hheld⟩
  rw [wp_ret]; imodintro
  iapply (wp_hlo_within 𝒱 (SparseCore.T d) none Set.univ (op := opR4) (S := tcRefs τ sig) (StableHlo.reshape_bufs_sub ..) (V := Vr3 m d)) $$ [Hb Hheld]
  · isplitl [Hb]; · iexact Hb
    iexact Hheld
  iintro ⟨Hb, Hheld⟩
  rw [wp_ret]; imodintro
  iapply (wp_hlo_within 𝒱 (SparseCore.T d) none Set.univ (op := opR5) (S := tcRefs τ sig) (StableHlo.reshape_bufs_sub ..) (V := Vr4 m d)) $$ [Hb Hheld]
  · isplitl [Hb]; · iexact Hb
    iexact Hheld
  iintro ⟨Hb, Hheld⟩
  rw [wp_ret]; imodintro
  iapply (wp_hlo_within 𝒱 (SparseCore.T d) none Set.univ (op := opR6) (S := tcRefs τ sig) (StableHlo.reshape_bufs_sub ..) (V := Vr5 m d)) $$ [Hb Hheld]
  · isplitl [Hb]; · iexact Hb
    iexact Hheld
  iintro ⟨Hb, Hheld⟩
  rw [wp_ret]; imodintro
  iapply (wp_hlo_within 𝒱 (SparseCore.T d) none Set.univ (op := opR7) (S := tcRefs τ sig) (StableHlo.reshape_bufs_sub ..) (V := Vr6 m d)) $$ [Hb Hheld]
  · isplitl [Hb]; · iexact Hb
    iexact Hheld
  iintro ⟨Hb, Hheld⟩
  rw [wp_ret]; imodintro
  iapply (wp_hlo_within 𝒱 (SparseCore.T d) none Set.univ (op := opR8) (S := tcRefs τ sig) (StableHlo.reshape_bufs_sub ..) (V := Vr7 m d)) $$ [Hb Hheld]
  · isplitl [Hb]; · iexact Hb
    iexact Hheld
  iintro ⟨Hb, Hheld⟩
  rw [wp_ret]; imodintro
  iapply (wp_hlo_within 𝒱 (SparseCore.T d) none Set.univ (op := opR9) (S := tcRefs τ sig) (StableHlo.reshape_bufs_sub ..) (V := Vr8 m d)) $$ [Hb Hheld]
  · isplitl [Hb]; · iexact Hb
    iexact Hheld
  iintro ⟨Hb, Hheld⟩
  rw [wp_ret]; imodintro
  iapply (wp_hlo_within 𝒱 (SparseCore.T d) none Set.univ (op := opR10) (S := tcRefs τ sig) (StableHlo.reshape_bufs_sub ..) (V := Vr9 m d)) $$ [Hb Hheld]
  · isplitl [Hb]; · iexact Hb
    iexact Hheld
  iintro ⟨Hb, Hheld⟩
  rw [wp_ret]; imodintro
  iapply (wp_hlo_within 𝒱 (SparseCore.T d) none Set.univ (op := opR11) (S := tcRefs τ sig) (StableHlo.reshape_bufs_sub ..) (V := Vr10 m d)) $$ [Hb Hheld]
  · isplitl [Hb]; · iexact Hb
    iexact Hheld
  iintro ⟨Hb, Hheld⟩
  rw [wp_ret]; imodintro
  iapply (wp_hlo_within 𝒱 (SparseCore.T d) none Set.univ (op := opR12) (S := tcRefs τ sig) (StableHlo.reshape_bufs_sub ..) (V := Vr11 m d)) $$ [Hb Hheld]
  · isplitl [Hb]; · iexact Hb
    iexact Hheld
  iintro ⟨Hb, Hheld⟩
  rw [wp_ret]; imodintro
  iapply (wp_hlo_within 𝒱 (SparseCore.T d) none Set.univ (op := opR13) (S := tcRefs τ sig) (StableHlo.reshape_bufs_sub ..) (V := Vr12 m d)) $$ [Hb Hheld]
  · isplitl [Hb]; · iexact Hb
    iexact Hheld
  iintro ⟨Hb, Hheld⟩
  rw [wp_ret]; imodintro
  iapply (wp_hlo_within 𝒱 (SparseCore.T d) none Set.univ (op := opR14) (S := tcRefs τ sig) (StableHlo.reshape_bufs_sub ..) (V := Vr13 m d)) $$ [Hb Hheld]
  · isplitl [Hb]; · iexact Hb
    iexact Hheld
  iintro ⟨Hb, Hheld⟩
  rw [wp_ret]; imodintro
  iapply (wp_hlo_within 𝒱 (SparseCore.T d) none Set.univ (op := opR15) (S := tcRefs τ sig) (StableHlo.reshape_bufs_sub ..) (V := Vr14 m d)) $$ [Hb Hheld]
  · isplitl [Hb]; · iexact Hb
    iexact Hheld
  iintro ⟨Hb, Hheld⟩
  rw [wp_ret]; imodintro
  iapply (wp_hlo_within 𝒱 (SparseCore.T d) none Set.univ (op := opR16) (S := tcRefs τ sig) (StableHlo.reshape_bufs_sub ..) (V := Vr15 m d)) $$ [Hb Hheld]
  · isplitl [Hb]; · iexact Hb
    iexact Hheld
  iintro ⟨Hb, Hheld⟩
  rw [wp_ret]; imodintro
  iapply (wp_hlo_within 𝒱 (SparseCore.T d) none Set.univ (op := opR17) (S := tcRefs τ sig) (StableHlo.reshape_bufs_sub ..) (V := Vr16 m d)) $$ [Hb Hheld]
  · isplitl [Hb]; · iexact Hb
    iexact Hheld
  iintro ⟨Hb, Hheld⟩
  rw [wp_ret]; imodintro
  iapply (wp_hlo_within 𝒱 (SparseCore.T d) none Set.univ (op := opR18) (S := tcRefs τ sig) (StableHlo.reshape_bufs_sub ..) (V := Vr17 m d)) $$ [Hb Hheld]
  · isplitl [Hb]; · iexact Hb
    iexact Hheld
  iintro ⟨Hb, Hheld⟩
  rw [wp_ret]; imodintro
  iapply (wp_hlo_within 𝒱 (SparseCore.T d) none Set.univ (op := opR19) (S := tcRefs τ sig) (StableHlo.reshape_bufs_sub ..) (V := Vr18 m d)) $$ [Hb Hheld]
  · isplitl [Hb]; · iexact Hb
    iexact Hheld
  iintro ⟨Hb, Hheld⟩
  rw [wp_ret]; imodintro
  iapply (wp_hlo_within 𝒱 (SparseCore.T d) none Set.univ (op := opR20) (S := tcRefs τ sig) (StableHlo.reshape_bufs_sub ..) (V := Vr19 m d)) $$ [Hb Hheld]
  · isplitl [Hb]; · iexact Hb
    iexact Hheld
  iintro ⟨Hb, Hheld⟩
  rw [wp_ret]; imodintro
  iapply (wp_hlo_within 𝒱 (SparseCore.T d) none Set.univ (op := opR21) (S := tcRefs τ sig) (StableHlo.reshape_bufs_sub ..) (V := Vr20 m d)) $$ [Hb Hheld]
  · isplitl [Hb]; · iexact Hb
    iexact Hheld
  iintro ⟨Hb, Hheld⟩
  rw [wp_ret]; imodintro
  imodintro
  isplitl [Hst]; · iexact Hst
  iexact Hheld

/-! ## What the final memory says -/

def fq (d : Dev nD) (s' : Phys nD τ sig (Elt F)) : Prop :=
  ∀ b : Ref sig .tc, s'.mem.mem ((SparseCore.T d).loc b) = Vr21 m d (Proc.devRef .tc b)

theorem hfin (d : Dev nD) (s' : Phys nD τ sig (Elt F)) : iprop(FIN m d ∗ SI s') ⊢ (⌜fq m d s'⌝ : sProp 𝕄) := by
  unfold FIN held
  iintro ⟨H, HSI⟩
  ihave %h := (SI_pointsTo_bufs_agree (qs := fun _ => fullShare) (tcRefs τ sig)) $$ [HSI H]
  · isplitl [HSI]; · iexact HSI
    iexact H
  ipureintro
  exact fun b => h _ (devRef_mem_tcRefs b)

set_option maxRecDepth 8192 in
set_option maxHeartbeats 1000000 in
theorem val0 (d : Dev nD) : Vr21 m d (Proc.devRef .tc (main_v23 : Ref sig .tc)) = resT 0 (m ((SparseCore.T d).loc main_arg0)) := by
  simp only [Vr0, Vr1, Vr2, Vr3, Vr4, Vr5, Vr6, Vr7, Vr8, Vr9, Vr10, Vr11, Vr12, Vr13, Vr14, Vr15, Vr16, Vr17, Vr18, Vr19, Vr20, Vr21, Vc0, Vc1, Vc2, Vc3, Vc4, Vc5, Vc6, Vc7, Vc8, Vc9, Vc10, Vc11, Vc12, Vc13, Vc14, Vc15, Vc16, Vc17, Vc18, Vc19, Vc20, Vc21, Vt]
  after_results_simp
  rfl
set_option maxRecDepth 8192 in
set_option maxHeartbeats 1000000 in
theorem val1 (d : Dev nD) : Vr21 m d (Proc.devRef .tc (main_v24 : Ref sig .tc)) = resT 1 (m ((SparseCore.T d).loc main_arg0)) := by
  simp only [Vr0, Vr1, Vr2, Vr3, Vr4, Vr5, Vr6, Vr7, Vr8, Vr9, Vr10, Vr11, Vr12, Vr13, Vr14, Vr15, Vr16, Vr17, Vr18, Vr19, Vr20, Vr21, Vc0, Vc1, Vc2, Vc3, Vc4, Vc5, Vc6, Vc7, Vc8, Vc9, Vc10, Vc11, Vc12, Vc13, Vc14, Vc15, Vc16, Vc17, Vc18, Vc19, Vc20, Vc21, Vt]
  after_results_simp
  rfl
set_option maxRecDepth 8192 in
set_option maxHeartbeats 1000000 in
theorem val2 (d : Dev nD) : Vr21 m d (Proc.devRef .tc (main_v25 : Ref sig .tc)) = resT 2 (m ((SparseCore.T d).loc main_arg0)) := by
  simp only [Vr0, Vr1, Vr2, Vr3, Vr4, Vr5, Vr6, Vr7, Vr8, Vr9, Vr10, Vr11, Vr12, Vr13, Vr14, Vr15, Vr16, Vr17, Vr18, Vr19, Vr20, Vr21, Vc0, Vc1, Vc2, Vc3, Vc4, Vc5, Vc6, Vc7, Vc8, Vc9, Vc10, Vc11, Vc12, Vc13, Vc14, Vc15, Vc16, Vc17, Vc18, Vc19, Vc20, Vc21, Vt]
  after_results_simp
  rfl
set_option maxRecDepth 8192 in
set_option maxHeartbeats 1000000 in
theorem val3 (d : Dev nD) : Vr21 m d (Proc.devRef .tc (main_v26 : Ref sig .tc)) = resT 3 (m ((SparseCore.T d).loc main_arg0)) := by
  simp only [Vr0, Vr1, Vr2, Vr3, Vr4, Vr5, Vr6, Vr7, Vr8, Vr9, Vr10, Vr11, Vr12, Vr13, Vr14, Vr15, Vr16, Vr17, Vr18, Vr19, Vr20, Vr21, Vc0, Vc1, Vc2, Vc3, Vc4, Vc5, Vc6, Vc7, Vc8, Vc9, Vc10, Vc11, Vc12, Vc13, Vc14, Vc15, Vc16, Vc17, Vc18, Vc19, Vc20, Vc21, Vt]
  after_results_simp
  rfl
set_option maxRecDepth 8192 in
set_option maxHeartbeats 1000000 in
theorem val4 (d : Dev nD) : Vr21 m d (Proc.devRef .tc (main_v27 : Ref sig .tc)) = resT 4 (m ((SparseCore.T d).loc main_arg0)) := by
  simp only [Vr0, Vr1, Vr2, Vr3, Vr4, Vr5, Vr6, Vr7, Vr8, Vr9, Vr10, Vr11, Vr12, Vr13, Vr14, Vr15, Vr16, Vr17, Vr18, Vr19, Vr20, Vr21, Vc0, Vc1, Vc2, Vc3, Vc4, Vc5, Vc6, Vc7, Vc8, Vc9, Vc10, Vc11, Vc12, Vc13, Vc14, Vc15, Vc16, Vc17, Vc18, Vc19, Vc20, Vc21, Vt]
  after_results_simp
  rfl
set_option maxRecDepth 8192 in
set_option maxHeartbeats 1000000 in
theorem val5 (d : Dev nD) : Vr21 m d (Proc.devRef .tc (main_v28 : Ref sig .tc)) = resT 5 (m ((SparseCore.T d).loc main_arg0)) := by
  simp only [Vr0, Vr1, Vr2, Vr3, Vr4, Vr5, Vr6, Vr7, Vr8, Vr9, Vr10, Vr11, Vr12, Vr13, Vr14, Vr15, Vr16, Vr17, Vr18, Vr19, Vr20, Vr21, Vc0, Vc1, Vc2, Vc3, Vc4, Vc5, Vc6, Vc7, Vc8, Vc9, Vc10, Vc11, Vc12, Vc13, Vc14, Vc15, Vc16, Vc17, Vc18, Vc19, Vc20, Vc21, Vt]
  after_results_simp
  rfl
set_option maxRecDepth 8192 in
set_option maxHeartbeats 1000000 in
theorem val6 (d : Dev nD) : Vr21 m d (Proc.devRef .tc (main_v29 : Ref sig .tc)) = resT 6 (m ((SparseCore.T d).loc main_arg0)) := by
  simp only [Vr0, Vr1, Vr2, Vr3, Vr4, Vr5, Vr6, Vr7, Vr8, Vr9, Vr10, Vr11, Vr12, Vr13, Vr14, Vr15, Vr16, Vr17, Vr18, Vr19, Vr20, Vr21, Vc0, Vc1, Vc2, Vc3, Vc4, Vc5, Vc6, Vc7, Vc8, Vc9, Vc10, Vc11, Vc12, Vc13, Vc14, Vc15, Vc16, Vc17, Vc18, Vc19, Vc20, Vc21, Vt]
  after_results_simp
  rfl
set_option maxRecDepth 8192 in
set_option maxHeartbeats 1000000 in
theorem val7 (d : Dev nD) : Vr21 m d (Proc.devRef .tc (main_v30 : Ref sig .tc)) = resT 7 (m ((SparseCore.T d).loc main_arg0)) := by
  simp only [Vr0, Vr1, Vr2, Vr3, Vr4, Vr5, Vr6, Vr7, Vr8, Vr9, Vr10, Vr11, Vr12, Vr13, Vr14, Vr15, Vr16, Vr17, Vr18, Vr19, Vr20, Vr21, Vc0, Vc1, Vc2, Vc3, Vc4, Vc5, Vc6, Vc7, Vc8, Vc9, Vc10, Vc11, Vc12, Vc13, Vc14, Vc15, Vc16, Vc17, Vc18, Vc19, Vc20, Vc21, Vt]
  after_results_simp
  rfl
set_option maxRecDepth 8192 in
set_option maxHeartbeats 1000000 in
theorem val8 (d : Dev nD) : Vr21 m d (Proc.devRef .tc (main_v31 : Ref sig .tc)) = resT 8 (m ((SparseCore.T d).loc main_arg0)) := by
  simp only [Vr0, Vr1, Vr2, Vr3, Vr4, Vr5, Vr6, Vr7, Vr8, Vr9, Vr10, Vr11, Vr12, Vr13, Vr14, Vr15, Vr16, Vr17, Vr18, Vr19, Vr20, Vr21, Vc0, Vc1, Vc2, Vc3, Vc4, Vc5, Vc6, Vc7, Vc8, Vc9, Vc10, Vc11, Vc12, Vc13, Vc14, Vc15, Vc16, Vc17, Vc18, Vc19, Vc20, Vc21, Vt]
  after_results_simp
  rfl
set_option maxRecDepth 8192 in
set_option maxHeartbeats 1000000 in
theorem val9 (d : Dev nD) : Vr21 m d (Proc.devRef .tc (main_v32 : Ref sig .tc)) = resT 9 (m ((SparseCore.T d).loc main_arg0)) := by
  simp only [Vr0, Vr1, Vr2, Vr3, Vr4, Vr5, Vr6, Vr7, Vr8, Vr9, Vr10, Vr11, Vr12, Vr13, Vr14, Vr15, Vr16, Vr17, Vr18, Vr19, Vr20, Vr21, Vc0, Vc1, Vc2, Vc3, Vc4, Vc5, Vc6, Vc7, Vc8, Vc9, Vc10, Vc11, Vc12, Vc13, Vc14, Vc15, Vc16, Vc17, Vc18, Vc19, Vc20, Vc21, Vt]
  after_results_simp
  rfl
set_option maxRecDepth 8192 in
set_option maxHeartbeats 1000000 in
theorem val10 (d : Dev nD) : Vr21 m d (Proc.devRef .tc (main_v33 : Ref sig .tc)) = resT 10 (m ((SparseCore.T d).loc main_arg0)) := by
  simp only [Vr0, Vr1, Vr2, Vr3, Vr4, Vr5, Vr6, Vr7, Vr8, Vr9, Vr10, Vr11, Vr12, Vr13, Vr14, Vr15, Vr16, Vr17, Vr18, Vr19, Vr20, Vr21, Vc0, Vc1, Vc2, Vc3, Vc4, Vc5, Vc6, Vc7, Vc8, Vc9, Vc10, Vc11, Vc12, Vc13, Vc14, Vc15, Vc16, Vc17, Vc18, Vc19, Vc20, Vc21, Vt]
  after_results_simp
  rfl
set_option maxRecDepth 8192 in
set_option maxHeartbeats 1000000 in
theorem val11 (d : Dev nD) : Vr21 m d (Proc.devRef .tc (main_v34 : Ref sig .tc)) = resT 11 (m ((SparseCore.T d).loc main_arg0)) := by
  simp only [Vr0, Vr1, Vr2, Vr3, Vr4, Vr5, Vr6, Vr7, Vr8, Vr9, Vr10, Vr11, Vr12, Vr13, Vr14, Vr15, Vr16, Vr17, Vr18, Vr19, Vr20, Vr21, Vc0, Vc1, Vc2, Vc3, Vc4, Vc5, Vc6, Vc7, Vc8, Vc9, Vc10, Vc11, Vc12, Vc13, Vc14, Vc15, Vc16, Vc17, Vc18, Vc19, Vc20, Vc21, Vt]
  after_results_simp
  rfl
set_option maxRecDepth 8192 in
set_option maxHeartbeats 1000000 in
theorem val12 (d : Dev nD) : Vr21 m d (Proc.devRef .tc (main_v35 : Ref sig .tc)) = resT 12 (m ((SparseCore.T d).loc main_arg0)) := by
  simp only [Vr0, Vr1, Vr2, Vr3, Vr4, Vr5, Vr6, Vr7, Vr8, Vr9, Vr10, Vr11, Vr12, Vr13, Vr14, Vr15, Vr16, Vr17, Vr18, Vr19, Vr20, Vr21, Vc0, Vc1, Vc2, Vc3, Vc4, Vc5, Vc6, Vc7, Vc8, Vc9, Vc10, Vc11, Vc12, Vc13, Vc14, Vc15, Vc16, Vc17, Vc18, Vc19, Vc20, Vc21, Vt]
  after_results_simp
  rfl
set_option maxRecDepth 8192 in
set_option maxHeartbeats 1000000 in
theorem val13 (d : Dev nD) : Vr21 m d (Proc.devRef .tc (main_v36 : Ref sig .tc)) = resT 13 (m ((SparseCore.T d).loc main_arg0)) := by
  simp only [Vr0, Vr1, Vr2, Vr3, Vr4, Vr5, Vr6, Vr7, Vr8, Vr9, Vr10, Vr11, Vr12, Vr13, Vr14, Vr15, Vr16, Vr17, Vr18, Vr19, Vr20, Vr21, Vc0, Vc1, Vc2, Vc3, Vc4, Vc5, Vc6, Vc7, Vc8, Vc9, Vc10, Vc11, Vc12, Vc13, Vc14, Vc15, Vc16, Vc17, Vc18, Vc19, Vc20, Vc21, Vt]
  after_results_simp
  rfl
set_option maxRecDepth 8192 in
set_option maxHeartbeats 1000000 in
theorem val14 (d : Dev nD) : Vr21 m d (Proc.devRef .tc (main_v37 : Ref sig .tc)) = resT 14 (m ((SparseCore.T d).loc main_arg0)) := by
  simp only [Vr0, Vr1, Vr2, Vr3, Vr4, Vr5, Vr6, Vr7, Vr8, Vr9, Vr10, Vr11, Vr12, Vr13, Vr14, Vr15, Vr16, Vr17, Vr18, Vr19, Vr20, Vr21, Vc0, Vc1, Vc2, Vc3, Vc4, Vc5, Vc6, Vc7, Vc8, Vc9, Vc10, Vc11, Vc12, Vc13, Vc14, Vc15, Vc16, Vc17, Vc18, Vc19, Vc20, Vc21, Vt]
  after_results_simp
  rfl
set_option maxRecDepth 8192 in
set_option maxHeartbeats 1000000 in
theorem val15 (d : Dev nD) : Vr21 m d (Proc.devRef .tc (main_v38 : Ref sig .tc)) = resT 15 (m ((SparseCore.T d).loc main_arg0)) := by
  simp only [Vr0, Vr1, Vr2, Vr3, Vr4, Vr5, Vr6, Vr7, Vr8, Vr9, Vr10, Vr11, Vr12, Vr13, Vr14, Vr15, Vr16, Vr17, Vr18, Vr19, Vr20, Vr21, Vc0, Vc1, Vc2, Vc3, Vc4, Vc5, Vc6, Vc7, Vc8, Vc9, Vc10, Vc11, Vc12, Vc13, Vc14, Vc15, Vc16, Vc17, Vc18, Vc19, Vc20, Vc21, Vt]
  after_results_simp
  rfl
set_option maxRecDepth 8192 in
set_option maxHeartbeats 1000000 in
theorem val16 (d : Dev nD) : Vr21 m d (Proc.devRef .tc (main_v39 : Ref sig .tc)) = resT 16 (m ((SparseCore.T d).loc main_arg0)) := by
  simp only [Vr0, Vr1, Vr2, Vr3, Vr4, Vr5, Vr6, Vr7, Vr8, Vr9, Vr10, Vr11, Vr12, Vr13, Vr14, Vr15, Vr16, Vr17, Vr18, Vr19, Vr20, Vr21, Vc0, Vc1, Vc2, Vc3, Vc4, Vc5, Vc6, Vc7, Vc8, Vc9, Vc10, Vc11, Vc12, Vc13, Vc14, Vc15, Vc16, Vc17, Vc18, Vc19, Vc20, Vc21, Vt]
  after_results_simp
  rfl
set_option maxRecDepth 8192 in
set_option maxHeartbeats 1000000 in
theorem val17 (d : Dev nD) : Vr21 m d (Proc.devRef .tc (main_v40 : Ref sig .tc)) = resT 17 (m ((SparseCore.T d).loc main_arg0)) := by
  simp only [Vr0, Vr1, Vr2, Vr3, Vr4, Vr5, Vr6, Vr7, Vr8, Vr9, Vr10, Vr11, Vr12, Vr13, Vr14, Vr15, Vr16, Vr17, Vr18, Vr19, Vr20, Vr21, Vc0, Vc1, Vc2, Vc3, Vc4, Vc5, Vc6, Vc7, Vc8, Vc9, Vc10, Vc11, Vc12, Vc13, Vc14, Vc15, Vc16, Vc17, Vc18, Vc19, Vc20, Vc21, Vt]
  after_results_simp
  rfl
set_option maxRecDepth 8192 in
set_option maxHeartbeats 1000000 in
theorem val18 (d : Dev nD) : Vr21 m d (Proc.devRef .tc (main_v41 : Ref sig .tc)) = resT 18 (m ((SparseCore.T d).loc main_arg0)) := by
  simp only [Vr0, Vr1, Vr2, Vr3, Vr4, Vr5, Vr6, Vr7, Vr8, Vr9, Vr10, Vr11, Vr12, Vr13, Vr14, Vr15, Vr16, Vr17, Vr18, Vr19, Vr20, Vr21, Vc0, Vc1, Vc2, Vc3, Vc4, Vc5, Vc6, Vc7, Vc8, Vc9, Vc10, Vc11, Vc12, Vc13, Vc14, Vc15, Vc16, Vc17, Vc18, Vc19, Vc20, Vc21, Vt]
  after_results_simp
  rfl
set_option maxRecDepth 8192 in
set_option maxHeartbeats 1000000 in
theorem val19 (d : Dev nD) : Vr21 m d (Proc.devRef .tc (main_v42 : Ref sig .tc)) = resT 19 (m ((SparseCore.T d).loc main_arg0)) := by
  simp only [Vr0, Vr1, Vr2, Vr3, Vr4, Vr5, Vr6, Vr7, Vr8, Vr9, Vr10, Vr11, Vr12, Vr13, Vr14, Vr15, Vr16, Vr17, Vr18, Vr19, Vr20, Vr21, Vc0, Vc1, Vc2, Vc3, Vc4, Vc5, Vc6, Vc7, Vc8, Vc9, Vc10, Vc11, Vc12, Vc13, Vc14, Vc15, Vc16, Vc17, Vc18, Vc19, Vc20, Vc21, Vt]
  after_results_simp
  rfl
set_option maxRecDepth 8192 in
set_option maxHeartbeats 1000000 in
theorem val20 (d : Dev nD) : Vr21 m d (Proc.devRef .tc (main_v43 : Ref sig .tc)) = resT 20 (m ((SparseCore.T d).loc main_arg0)) := by
  simp only [Vr0, Vr1, Vr2, Vr3, Vr4, Vr5, Vr6, Vr7, Vr8, Vr9, Vr10, Vr11, Vr12, Vr13, Vr14, Vr15, Vr16, Vr17, Vr18, Vr19, Vr20, Vr21, Vc0, Vc1, Vc2, Vc3, Vc4, Vc5, Vc6, Vc7, Vc8, Vc9, Vc10, Vc11, Vc12, Vc13, Vc14, Vc15, Vc16, Vc17, Vc18, Vc19, Vc20, Vc21, Vt]
  after_results_simp
  rfl
set_option maxRecDepth 8192 in
set_option maxHeartbeats 1000000 in
theorem val21 (d : Dev nD) : Vr21 m d (Proc.devRef .tc (main_v44 : Ref sig .tc)) = resT 21 (m ((SparseCore.T d).loc main_arg0)) := by
  simp only [Vr0, Vr1, Vr2, Vr3, Vr4, Vr5, Vr6, Vr7, Vr8, Vr9, Vr10, Vr11, Vr12, Vr13, Vr14, Vr15, Vr16, Vr17, Vr18, Vr19, Vr20, Vr21, Vc0, Vc1, Vc2, Vc3, Vc4, Vc5, Vc6, Vc7, Vc8, Vc9, Vc10, Vc11, Vc12, Vc13, Vc14, Vc15, Vc16, Vc17, Vc18, Vc19, Vc20, Vc21, Vt]
  after_results_simp
  rfl
set_option maxRecDepth 8192 in
set_option maxHeartbeats 1000000 in
theorem val_arg (d : Dev nD) : Vr21 m d (Proc.devRef .tc (main_arg0 : Ref sig .tc)) = m ((SparseCore.T d).loc main_arg0) := by
  simp only [Vr0, Vr1, Vr2, Vr3, Vr4, Vr5, Vr6, Vr7, Vr8, Vr9, Vr10, Vr11, Vr12, Vr13, Vr14, Vr15, Vr16, Vr17, Vr18, Vr19, Vr20, Vr21, Vc0, Vc1, Vc2, Vc3, Vc4, Vc5, Vc6, Vc7, Vc8, Vc9, Vc10, Vc11, Vc12, Vc13, Vc14, Vc15, Vc16, Vc17, Vc18, Vc19, Vc20, Vc21, Vt]
  after_results_simp
  rfl

/-! ## The run -/

def QC : PUnit × MemSt nD τ sig (Elt F) → Prop := fun r => ∀ c : Dev nD,
  r.2.mem ((c.tc : Thread nD τ).loc main_v23) = resT 0 (m ((c.tc : Thread nD τ).loc main_arg0))
  ∧ r.2.mem ((c.tc : Thread nD τ).loc main_v24) = resT 1 (m ((c.tc : Thread nD τ).loc main_arg0))
  ∧ r.2.mem ((c.tc : Thread nD τ).loc main_v25) = resT 2 (m ((c.tc : Thread nD τ).loc main_arg0))
  ∧ r.2.mem ((c.tc : Thread nD τ).loc main_v26) = resT 3 (m ((c.tc : Thread nD τ).loc main_arg0))
  ∧ r.2.mem ((c.tc : Thread nD τ).loc main_v27) = resT 4 (m ((c.tc : Thread nD τ).loc main_arg0))
  ∧ r.2.mem ((c.tc : Thread nD τ).loc main_v28) = resT 5 (m ((c.tc : Thread nD τ).loc main_arg0))
  ∧ r.2.mem ((c.tc : Thread nD τ).loc main_v29) = resT 6 (m ((c.tc : Thread nD τ).loc main_arg0))
  ∧ r.2.mem ((c.tc : Thread nD τ).loc main_v30) = resT 7 (m ((c.tc : Thread nD τ).loc main_arg0))
  ∧ r.2.mem ((c.tc : Thread nD τ).loc main_v31) = resT 8 (m ((c.tc : Thread nD τ).loc main_arg0))
  ∧ r.2.mem ((c.tc : Thread nD τ).loc main_v32) = resT 9 (m ((c.tc : Thread nD τ).loc main_arg0))
  ∧ r.2.mem ((c.tc : Thread nD τ).loc main_v33) = resT 10 (m ((c.tc : Thread nD τ).loc main_arg0))
  ∧ r.2.mem ((c.tc : Thread nD τ).loc main_v34) = resT 11 (m ((c.tc : Thread nD τ).loc main_arg0))
  ∧ r.2.mem ((c.tc : Thread nD τ).loc main_v35) = resT 12 (m ((c.tc : Thread nD τ).loc main_arg0))
  ∧ r.2.mem ((c.tc : Thread nD τ).loc main_v36) = resT 13 (m ((c.tc : Thread nD τ).loc main_arg0))
  ∧ r.2.mem ((c.tc : Thread nD τ).loc main_v37) = resT 14 (m ((c.tc : Thread nD τ).loc main_arg0))
  ∧ r.2.mem ((c.tc : Thread nD τ).loc main_v38) = resT 15 (m ((c.tc : Thread nD τ).loc main_arg0))
  ∧ r.2.mem ((c.tc : Thread nD τ).loc main_v39) = resT 16 (m ((c.tc : Thread nD τ).loc main_arg0))
  ∧ r.2.mem ((c.tc : Thread nD τ).loc main_v40) = resT 17 (m ((c.tc : Thread nD τ).loc main_arg0))
  ∧ r.2.mem ((c.tc : Thread nD τ).loc main_v41) = resT 18 (m ((c.tc : Thread nD τ).loc main_arg0))
  ∧ r.2.mem ((c.tc : Thread nD τ).loc main_v42) = resT 19 (m ((c.tc : Thread nD τ).loc main_arg0))
  ∧ r.2.mem ((c.tc : Thread nD τ).loc main_v43) = resT 20 (m ((c.tc : Thread nD τ).loc main_arg0))
  ∧ r.2.mem ((c.tc : Thread nD τ).loc main_v44) = resT 21 (m ((c.tc : Thread nD τ).loc main_arg0))
  ∧ r.2.mem ((c.tc : Thread nD τ).loc main_arg0) = m ((c.tc : Thread nD τ).loc main_arg0)

/-- Every weakly fair execution of the device's threads terminates, with result q at row q of the transposed argument
    reshaped to a column, and the argument unchanged — given the 22 kernels' body proofs. -/
theorem run_main [∀ e, Nonempty (Elt F e)] (htile : TileBodies F) :
    θ_run (Cert.Kernel.defs (F := F)) (Cert.Kernel.threads (F := F)) ⟨m, fun _ => 0, ρ⟩ (QC m) :=
  SparseCore.Cfg.θ_run_sc (K := K (F := F)) (D := D (F := F)) (𝒱 := 𝒱) (EH := EH) (P := P m) facts v₀
    (fun q hq => absurd hq (by rw [kind_eq]; decide))
    (fun q _ => tileObl m facts htile q)
    (fun q _ => SparseCore.Cfg.VecSplit.of_plain (vecSplit m q))
    m ρ main (fun _ => iprop(emp)) (FIN m) (u₀ (F := F)) (sep_elim_left.trans (hu₀ m)) (hmain m ρ) (fq m) (hfin m) (QC m)
    (fun s' h c => ⟨(h c main_v23).trans (val0 m c), (h c main_v24).trans (val1 m c), (h c main_v25).trans (val2 m c), (h c main_v26).trans (val3 m c), (h c main_v27).trans (val4 m c), (h c main_v28).trans (val5 m c), (h c main_v29).trans (val6 m c), (h c main_v30).trans (val7 m c), (h c main_v31).trans (val8 m c), (h c main_v32).trans (val9 m c), (h c main_v33).trans (val10 m c), (h c main_v34).trans (val11 m c), (h c main_v35).trans (val12 m c), (h c main_v36).trans (val13 m c), (h c main_v37).trans (val14 m c), (h c main_v38).trans (val15 m c), (h c main_v39).trans (val16 m c), (h c main_v40).trans (val17 m c), (h c main_v41).trans (val18 m c), (h c main_v42).trans (val19 m c), (h c main_v43).trans (val20 m c), (h c main_v44).trans (val21 m c), (h c main_arg0).trans (val_arg m c)⟩)

end Cert.Proof.LaunchKB

end
-- ==== Proof.TileVal.lean ====
/-
  What the staging buffers of one vector subcore hold while it copies a piece of 3200 consecutive elements of row 0 of
  the transposed argument into the flat result, read index by index. No program and no ownership here: only the contents.

  A transfer lands the piece in row 0 of an 8 × 3200 staging array (`InRow`: position (0, t) of that row holds element
  (0, pos + t) of the transposed argument, `pos` the piece's first column). A loop of 200 trips copies that row, 16 lanes
  per trip, into the first 3200 elements of a flat staging array of 25600: trip `j` reads the 1 × 16 window at columns
  [16 j, 16 j + 16) of row 0 and writes it, flattened, at elements [16 j, 16 j + 16). After `j` trips the first 16 j
  elements of the flat array are the first 16 j elements of the row (`Lanes`); a trip extends the prefix by 16
  (`lanes_step`: an element below 16 j is outside the window written and keeps its value, an element of the window reads
  the lane written there, which is the row's element at the same column). A second transfer writes the first 3200
  elements of the flat array to the piece of the result at the same `pos`; so every element of that piece of the result
  holds the element of row 0 of the transposed argument at its own position (`out_written`): the composite of the three
  index maps t ↦ (0, pos + t) ↦ (0, t) ↦ t ↦ pos + t is the identity on positions of the row.
-/
import proofs.«206869_g37898791420194_cont_8to1_b_558_20_alg».proof.Proof.TileK0Defs
import proofs.«206869_g37898791420194_cont_8to1_b_558_20_alg».proof.Proof.Spec
import Idealize.ShloMosaic.Lib.WritesUnit
import Idealize.ShloMosaic.Lib.ValueLayout

noncomputable section

namespace Cert.Proof.TileVal

open Cert.Proof.TileK0 Cert.KernelIdeal Cert.KernelIdeal.Gen
open Idealize.ShloMosaic Idealize.ShloMosaic.ValueIdx

variable {F : FTy → Type} [FloatOps F]
variable (d : Dev nD) (L : grid0.Coords)
variable (fx : Buf (Elt F) ((Memref.whole main_v0_scv : Memref sig .scVector .hbm S22x1600000 .f32).view.loc (thr d L)))

abbrev rowRect : Rect S8x3200 := Rect.unit (s := S8x3200) ![0, 0] S1x3200.size inb_S8x3200_S1x3200_0_0

/-- row 0 of the staging array is piece n of the argument row -/
def InRow (a : Memref sig .scVector .vmem S8x3200 .f32) (ga : Buf (Elt F) (a.view.loc (thr d L))) (n : ℕ) : Prop :=
  ∀ y : S1x3200.Idx, a.view.read (Elt F) ga (rowRect.emb y) = (inM L n).view.read (Elt F) fx y

theorem inRow_fetch (a : Memref sig .scVector .vmem S8x3200 .f32) (gold : Buf (Elt F) (a.view.loc (thr d L)))
    (w : S1x3200.Idx → Elt F .f32) (n : ℕ) (hw : ∀ y, w y = (inM L n).view.read (Elt F) fx y) :
    InRow d L fx a (a.view.writes (Elt F) gold [⟨rowRect, w⟩]) n :=
  fun y => (View.read_writes_cons_emb a.view gold rowRect w [] y).trans (hw y)

def Lanes (a : Memref sig .scVector .vmem S8x3200 .f32) (b : Memref sig .scVector .vmem S25600 .f32)
    (ga : Buf (Elt F) (a.view.loc (thr d L))) (gb : Buf (Elt F) (b.view.loc (thr d L))) (j : ℕ) : Prop :=
  ∀ (r : ℕ) (hr : r < 3200), r < 16 * j →
    b.view.read (Elt F) gb (ix1 (⟨r, by omega⟩ : Fin 25600)) = a.view.read (Elt F) ga (ix2 (0 : Fin 8) (⟨r, hr⟩ : Fin 3200))

theorem lanes_zero (a : Memref sig .scVector .vmem S8x3200 .f32) (b : Memref sig .scVector .vmem S25600 .f32)
    (ga : Buf (Elt F) (a.view.loc (thr d L))) (gb : Buf (Elt F) (b.view.loc (thr d L))) : Lanes d L a b ga gb 0 := by
  intro r hr h; omega

/-- The 1 × 16 window at column `c` of the staging array, read at lane `t`, is element `(0, c + t)`. -/
theorem idx_window {off : Fin 2 → ℕ} {c : ℕ} (h : off = ![0, c]) (p : ∀ a', off a' + S1x16.size a' ≤ S8x3200.size a')
    (t : Fin 16) (hr : c + t.val < 3200) :
    (Rect.unit (s := S8x3200) off S1x16.size p).toLoadRect.idx (ix2 (0 : Fin 1) t) = ix2 (0 : Fin 8) (⟨c + t.val, hr⟩ : Fin 3200) := by
  subst h
  funext a'; apply Fin.ext
  rw [LoadRect.idx_apply]
  match a' with
  | ⟨0, _⟩ => show 0 + 1 * 0 = 0; omega
  | ⟨1, _⟩ => show c + 1 * t.val = c + t.val; omega

/-- One trip of a lane-copy loop, the offsets given by their closed forms. -/
theorem lanes_step_core (a : Memref sig .scVector .vmem S8x3200 .f32) (b : Memref sig .scVector .vmem S25600 .f32)
    (ga : Buf (Elt F) (a.view.loc (thr d L))) (gb : Buf (Elt F) (b.view.loc (thr d L)))
    (t : ℕ) {off3 : Fin 2 → ℕ} {off4 : Fin 1 → ℕ} (h3 : off3 = ![0, 16 * t]) (h4 : off4 = ![16 * t])
    (p3 : ∀ a', off3 a' + S1x16.size a' ≤ S8x3200.size a') (p4 : ∀ a', off4 a' + S16.size a' ≤ S25600.size a')
    (h : Lanes d L a b ga gb t) :
    Lanes d L a b ga (b.view.writes (Elt F) gb [⟨Rect.unit (s := S25600) off4 S16.size p4,
      shapeCast S16 (a.view.readAt (Elt F) (Rect.unit (s := S8x3200) off3 S1x16.size p3).toLoadRect ga) shapeCasts_S1x16_S16⟩]) (t + 1) := by
  intro r hr hlt
  by_cases hlo : r < 16 * t
  · refine (View.read_writes_cons_unit_of_not_mem b.view gb p4 _ [] _ h4 (0 : Fin 1) (Or.inl ?_)).trans (h r hr hlo)
    show r < 16 * t
    exact hlo
  · have hx : r - 16 * t < 16 := by omega
    refine (View.read_writes_cons_unit_of_mem b.view gb p4 _ [] _ (ix1 (⟨r - 16 * t, hx⟩ : Fin 16)) h4 ?_).trans ?_
    · intro a'
      match a' with
      | ⟨0, _⟩ => show r = 16 * t + (r - 16 * t); omega
    · rw [shapeCast_1a_a_apply, View.readAt_apply, idx_window h3 p3 ⟨r - 16 * t, hx⟩ (by show 16 * t + (r - 16 * t) < 3200; omega)]
      congr 2
      apply Fin.ext
      show 16 * t + (r - 16 * t) = r
      omega

theorem lanes_step (a : Memref sig .scVector .vmem S8x3200 .f32) (b : Memref sig .scVector .vmem S25600 .f32)
    (ga : Buf (Elt F) (a.view.loc (thr d L))) (gb : Buf (Elt F) (b.view.loc (thr d L)))
    (j : Fin k0_t2_loop.trips) (p3 : ∀ a', (k0_off3 j) a' + S1x16.size a' ≤ S8x3200.size a')
    (p4 : ∀ a', (k0_off4 j) a' + S16.size a' ≤ S25600.size a') (h : Lanes d L a b ga gb j.val) :
    Lanes d L a b ga (b.view.writes (Elt F) gb [⟨Rect.unit (s := S25600) (k0_off4 j) S16.size p4,
      k0_pay1 (a.view.readAt (Elt F) (Rect.unit (s := S8x3200) (k0_off3 j) S1x16.size p3).toLoadRect ga)⟩]) (j.val + 1) :=
  lanes_step_core d L a b ga gb j.val (k0_off3_eq j) (k0_off4_eq j) p3 p4 h

theorem lanes_step' (a : Memref sig .scVector .vmem S8x3200 .f32) (b : Memref sig .scVector .vmem S25600 .f32)
    (ga : Buf (Elt F) (a.view.loc (thr d L))) (gb : Buf (Elt F) (b.view.loc (thr d L)))
    (j : Fin k0_t3_loop.trips) (p3 : ∀ a', (k0_off8 j) a' + S1x16.size a' ≤ S8x3200.size a')
    (p4 : ∀ a', (k0_off9 j) a' + S16.size a' ≤ S25600.size a') (h : Lanes d L a b ga gb j.val) :
    Lanes d L a b ga (b.view.writes (Elt F) gb [⟨Rect.unit (s := S25600) (k0_off9 j) S16.size p4,
      k0_pay2 (a.view.readAt (Elt F) (Rect.unit (s := S8x3200) (k0_off8 j) S1x16.size p3).toLoadRect ga)⟩]) (j.val + 1) :=
  lanes_step_core d L a b ga gb j.val (k0_off8_eq j) (k0_off9_eq j) p3 p4 h

/-- Position `y` of the write-out window of the flat staging array is its element `y 0`. -/
theorem stg_emb (y : S3200.Idx) (hy : (y 0).val < 25600) :
    (Rect.unit (s := S25600) ![0] S3200.size inb_S25600_S3200_0).emb y = ix1 (⟨(y 0).val, hy⟩ : Fin 25600) := by
  funext a'; apply Fin.ext
  match a' with
  | ⟨0, _⟩ => show 0 + 1 * (y 0).val = (y 0).val; omega

/-- Position `(0, t)` of row 0 of the staging array is its element `(0, t)`. -/
theorem row_emb (t : Fin 3200) : rowRect.emb (ix2 (0 : Fin 1) t) = ix2 (0 : Fin 8) t := by
  funext a'; apply Fin.ext
  match a' with
  | ⟨0, _⟩ => show 0 + 1 * 0 = 0; omega
  | ⟨1, _⟩ => show 0 + 1 * t.val = t.val; omega

/-- Position `(0, t)` of piece `n` of the argument row is element `(0, pos + t)` of the transposed argument;
    position `y` of piece `n` of the result is element `pos + y 0` of the result. -/
theorem in_emb (n : ℕ) (t : Fin 3200) (h : pos L n + t.val < 1600000) :
    (inM L n).view.emb (ix2 (0 : Fin 1) t) = ix2 (0 : Fin 22) (⟨pos L n + t.val, h⟩ : Fin 1600000) := by
  funext a'; apply Fin.ext
  match a' with
  | ⟨0, _⟩ => show 0 + 1 * 0 = 0; omega
  | ⟨1, _⟩ => show pos L n + 1 * t.val = pos L n + t.val; omega

theorem out_emb (n : ℕ) (y : S3200.Idx) (h : pos L n + (y 0).val < 1600000) :
    (outM L n).view.emb y = ix1 (⟨pos L n + (y 0).val, h⟩ : Fin 1600000) := by
  funext a'; apply Fin.ext
  match a' with
  | ⟨0, _⟩ => show pos L n + 1 * (y 0).val = pos L n + (y 0).val; omega

/-- Both lane-copy loops run 200 trips: 200 · 16 = 3200, the whole row. -/
theorem trips2 : k0_t2_loop.trips = 200 := by decide
theorem trips3 : k0_t3_loop.trips = 200 := by decide

/-- After all its trips a lane-copy loop has copied the whole row. -/
theorem lanes_all (a : Memref sig .scVector .vmem S8x3200 .f32) (b : Memref sig .scVector .vmem S25600 .f32)
    (ga : Buf (Elt F) (a.view.loc (thr d L))) (gb : Buf (Elt F) (b.view.loc (thr d L)))
    (h : Lanes d L a b ga gb k0_t2_loop.trips) : Lanes d L a b ga gb 200 := trips2 ▸ h
theorem lanes_all' (a : Memref sig .scVector .vmem S8x3200 .f32) (b : Memref sig .scVector .vmem S25600 .f32)
    (ga : Buf (Elt F) (a.view.loc (thr d L))) (gb : Buf (Elt F) (b.view.loc (thr d L)))
    (h : Lanes d L a b ga gb k0_t3_loop.trips) : Lanes d L a b ga gb 200 := trips3 ▸ h

/-- The write-out of a piece: the first 3200 elements of the flat staging array, which the 200 lane copies filled from
    row 0 of the staging array, which the fetch filled from piece `n` of row 0 of the transposed argument, land at
    piece `n` of the result, at the same positions of the row. -/
theorem out_written (a : Memref sig .scVector .vmem S8x3200 .f32) (b : Memref sig .scVector .vmem S25600 .f32) (n : ℕ)
    (ga : Buf (Elt F) (a.view.loc (thr d L))) (gb : Buf (Elt F) (b.view.loc (thr d L)))
    (f0 : Buf (Elt F) ((outM L n).view.loc (thr d L))) (w : S3200.Idx → Elt F .f32)
    (hw : ∀ y, w y = (stg b).view.read (Elt F) gb y) (hl : Lanes d L a b ga gb 200) (hr : InRow d L fx a ga n) (hv : valid L n) :
    ∀ i ∈ (outM L n).view.set, ((outM L n).view.writes (Elt F) f0 [⟨Rect.whole _, w⟩]) i = Cert.Spec.row 0 fx i := by
  intro i hi
  obtain ⟨y, -, rfl⟩ := Finset.mem_map.mp hi
  have hy : (y 0).val < 3200 := (y 0).isLt
  have hp : pos L n + (y 0).val < 1600000 := by unfold pos; omega
  have e1 : (outM L n).view.writes (Elt F) f0 [⟨Rect.whole _, w⟩] ((outM L n).view.emb y) = w y := by
    have h := View.read_writes_cons_emb (outM L n).view f0 (Rect.whole _) w [] y
    rw [Rect.emb_whole_apply] at h
    exact (cast_eq _ _).symm.trans ((View.read_apply _ _).symm.trans h)
  have e2 : (stg b).view.read (Elt F) gb y = b.view.read (Elt F) gb (ix1 (⟨(y 0).val, by omega⟩ : Fin 25600)) :=
    congrArg (b.view.read (Elt F) gb) (stg_emb y (by omega))
  have e3 : a.view.read (Elt F) ga (ix2 (0 : Fin 8) (⟨(y 0).val, hy⟩ : Fin 3200))
      = (inM L n).view.read (Elt F) fx (ix2 (0 : Fin 1) (⟨(y 0).val, hy⟩ : Fin 3200)) :=
    (congrArg (a.view.read (Elt F) ga) (row_emb ⟨(y 0).val, hy⟩).symm).trans (hr _)
  have e4 : (inM L n).view.read (Elt F) fx (ix2 (0 : Fin 1) (⟨(y 0).val, hy⟩ : Fin 3200))
      = fx (ix2 (0 : Fin 22) (⟨pos L n + (y 0).val, hp⟩ : Fin 1600000)) :=
    ((View.read_apply _ _).trans (cast_eq _ _)).trans (congrArg fx (in_emb L n ⟨(y 0).val, hy⟩ hp))
  have e5 : Cert.Spec.row 0 fx ((outM L n).view.emb y) = fx (ix2 (0 : Fin 22) (⟨pos L n + (y 0).val, hp⟩ : Fin 1600000)) :=
    (congrArg (Cert.Spec.row 0 fx) (out_emb L n y hp)).trans (Cert.Spec.row_apply 0 fx _)
  exact e1.trans ((hw y).trans (e2.trans ((hl _ hy (by omega)).trans (e3.trans (e4.trans e5.symm)))))

end Cert.Proof.TileVal

end
-- ==== Proof.TileK0.lean ====
/-
  One vector subcore's task of the first copy kernel, run symbolically: the two fetch slots and two write-out slots
  between trips of the main loop (what each transfer in flight will hand back, and what the staging buffers hold), the
  invariant of the main loop and of the two lane-copy loops, and the task's run — from the tile's pieces of row 0 of
  the transposed argument and of the result to the same pieces with the result holding the row's elements.
-/
import proofs.«206869_g37898791420194_cont_8to1_b_558_20_alg».proof.Proof.TileK0Defs
import proofs.«206869_g37898791420194_cont_8to1_b_558_20_alg».proof.Proof.TileVal
noncomputable section

namespace Cert.Proof.TileK0

open Cert.KernelIdeal Cert.KernelIdeal.Gen Cert.Proof.TileVal
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 22) (Elt F) ℕ UU ℕ
local notation "xtW" => (Memref.whole Cert.KernelIdeal.main_v0_scv : Memref Cert.KernelIdeal.sig Kind.scVector Space.hbm Cert.KernelIdeal.S22x1600000 EltTy.f32)
local notation "oW" => (Memref.whole Cert.KernelIdeal.main_v1_scv : Memref Cert.KernelIdeal.sig Kind.scVector Space.hbm Cert.KernelIdeal.S1600000 EltTy.f32)
local notation "a4" => (Memref.whole Cert.KernelIdeal.cc0_scratch0 : Memref Cert.KernelIdeal.sig Kind.scVector Space.vmem Cert.KernelIdeal.S8x3200 EltTy.f32)
local notation "a5" => (Memref.whole Cert.KernelIdeal.cc0_scratch1 : Memref Cert.KernelIdeal.sig Kind.scVector Space.vmem Cert.KernelIdeal.S8x3200 EltTy.f32)
local notation "a6" => (Memref.whole Cert.KernelIdeal.cc0_scratch2 : Memref Cert.KernelIdeal.sig Kind.scVector Space.vmem Cert.KernelIdeal.S25600 EltTy.f32)
local notation "a7" => (Memref.whole Cert.KernelIdeal.cc0_scratch3 : Memref Cert.KernelIdeal.sig Kind.scVector Space.vmem Cert.KernelIdeal.S25600 EltTy.f32)

variable [FloatOps F]

section Tile

variable (d : Dev nD) (L : grid0.Coords)
variable (O : CellTallies nD τ sig (HIx 22)) (W : Waits sig (HIx 22))
variable (fx : Buf (Elt F) ((xtW).view.loc (thr d L)))

/-- Piece `n` of the result at its final contents. -/
abbrev oqPiece (n : ℕ) : sProp 𝕄 := (outM L n).view.loc (thr d L) ↦[(outM L n).view.set]{fullShare} (Cert.Spec.row 0 fx)
theorem oQ_pos {n : ℕ} (v : valid L n) : oQ d L fx n = oqPiece d L fx n := if_pos v
theorem oQ_neg {n : ℕ} (v : ¬ valid L n) : oQ d L fx n = iprop(emp) := if_neg v

/-- A fetch slot, remembering that the staging row it will hand back holds the piece. -/
def inSlotV (a : Memref sig .scVector .vmem S8x3200 .f32) (sm : DmaSem sig) (n : ℕ) : sProp 𝕄 :=
  if valid L n then
    iprop(∃ g, ⌜InRow d L fx a g n⌝ ∗ Transfers.Flight countersEmb (thr d L) (SemLoc.dma sm) (default : HIx 22) NN
      iprop((a.view.loc (thr d L) ↦{fullShare} g) ∗ xtPiece d L fx n))
  else iprop((∃ g, a.view.loc (thr d L) ↦{fullShare} g) ∗ semVal (thr d L, SemLoc.dma sm) 0)

/-- A write-out slot: the piece in flight will come back holding the row's elements. -/
def outSlotV (a : Memref sig .scVector .vmem S25600 .f32) (sm : DmaSem sig) (m : ℕ) : sProp 𝕄 :=
  if 2 ≤ m ∧ valid L (m - 2) then
    iprop(∃ g, Transfers.Flight countersEmb (thr d L) (SemLoc.dma sm) (default : HIx 22) NN
        iprop(oqPiece d L fx (m - 2) ∗ ((stg a).view.loc (thr d L) ↦[(stg a).view.set]{fullShare} g))
      ∗ (a.view.loc (thr d L) ↦[Finset.univ \ (stg a).view.set]{fullShare} g))
  else iprop((∃ g, a.view.loc (thr d L) ↦{fullShare} g) ∗ semVal (thr d L, SemLoc.dma sm) 0)

theorem inSlotV_pos {a : Memref sig .scVector .vmem S8x3200 .f32} {sm : DmaSem sig} {n : ℕ} (v : valid L n) :
    inSlotV d L fx a sm n = iprop(∃ g, ⌜InRow d L fx a g n⌝ ∗ Transfers.Flight countersEmb (thr d L) (SemLoc.dma sm) (default : HIx 22) NN
      iprop((a.view.loc (thr d L) ↦{fullShare} g) ∗ xtPiece d L fx n)) := by unfold inSlotV; rw [if_pos v]
theorem inSlotV_neg {a : Memref sig .scVector .vmem S8x3200 .f32} {sm : DmaSem sig} {n : ℕ} (v : ¬ valid L n) :
    inSlotV d L fx a sm n = iprop((∃ g, a.view.loc (thr d L) ↦{fullShare} g) ∗ semVal (thr d L, SemLoc.dma sm) 0) := by
  unfold inSlotV; rw [if_neg v]
theorem outSlotV_pos {a : Memref sig .scVector .vmem S25600 .f32} {sm : DmaSem sig} {m : ℕ} (h : 2 ≤ m ∧ valid L (m - 2)) :
    outSlotV d L fx a sm m = iprop(∃ g, Transfers.Flight countersEmb (thr d L) (SemLoc.dma sm) (default : HIx 22) NN
        iprop(oqPiece d L fx (m - 2) ∗ ((stg a).view.loc (thr d L) ↦[(stg a).view.set]{fullShare} g))
      ∗ (a.view.loc (thr d L) ↦[Finset.univ \ (stg a).view.set]{fullShare} g)) := by unfold outSlotV; rw [if_pos h]
theorem outSlotV_neg {a : Memref sig .scVector .vmem S25600 .f32} {sm : DmaSem sig} {m : ℕ} (h : ¬ (2 ≤ m ∧ valid L (m - 2))) :
    outSlotV d L fx a sm m = iprop((∃ g, a.view.loc (thr d L) ↦{fullShare} g) ∗ semVal (thr d L, SemLoc.dma sm) 0) := by
  unfold outSlotV; rw [if_neg h]

/-- A fetch just issued: the staging row will hold what the transfer reads, which is the piece. -/
theorem fl_inV {off : Fin 2 → ℕ} {n : ℕ} (h : off = ![0, pos L n]) (p : ∀ a, off a + S1x3200.size a ≤ S22x1600000.size a) (v : valid L n)
    (a : Memref sig .scVector .vmem S8x3200 .f32) (sm : DmaSem sig) :
    (iprop(∃ (gold : Buf (Elt F) (a.view.loc (thr d L))) (w : S1x3200.Idx → Elt F .f32),
        ⌜∀ y, w y = ((xtW).slice (Rect.unit (s := S22x1600000) off S1x3200.size p) (fun _ => rfl)).view.read (Elt F) fx y⌝
        ∗ Transfers.Flight countersEmb (thr d L) (SemLoc.dma sm) (default : HIx 22) NN
          iprop((a.view.loc (thr d L) ↦{fullShare} a.view.writes (Elt F) gold [⟨rowRect, w⟩])
            ∗ (((xtW).slice (Rect.unit (s := S22x1600000) off S1x3200.size p) (fun _ => rfl)).view.loc (thr d L)
                ↦[((xtW).slice (Rect.unit (s := S22x1600000) off S1x3200.size p) (fun _ => rfl)).view.set]{fullShare} fx))) : sProp 𝕄)
      ⊢ inSlotV d L fx a sm n := by
  subst h
  rw [inSlotV_pos d L fx v]
  iintro ⟨%gold, %w, %hw, H⟩
  iexists _
  isplitr
  · ipureintro; exact inRow_fetch d L fx a gold w n hw
  · iexact H

set_option maxHeartbeats 4000000 in
/-- A write-out just issued from a flat staging buffer whose first 3200 elements are the staging row, itself piece
    `n` of the argument row: the piece of the result will hold the row's elements. -/
theorem fl_outV {off : Fin 1 → ℕ} {n : ℕ} (h : off = ![pos L n]) (p : ∀ a, off a + S3200.size a ≤ S1600000.size a) (v : valid L n)
    (ar : Memref sig .scVector .vmem S8x3200 .f32) (a : Memref sig .scVector .vmem S25600 .f32) (sm : DmaSem sig)
    (f0 : Buf (Elt F) ((oW).view.loc (thr d L))) (ga : Buf (Elt F) (ar.view.loc (thr d L))) (gb : Buf (Elt F) (a.view.loc (thr d L)))
    (hl : Lanes d L ar a ga gb 200) (hr : InRow d L fx ar ga n) :
    (iprop(∃ (w : S3200.Idx → Elt F .f32),
        ⌜∀ y, w y = (stg a).view.read (Elt F) gb y⌝
        ∗ Transfers.Flight countersEmb (thr d L) (SemLoc.dma sm) (default : HIx 22) NN
          iprop((((oW).slice (Rect.unit (s := S1600000) off S3200.size p) (fun _ => rfl)).view.loc (thr d L)
                ↦[((oW).slice (Rect.unit (s := S1600000) off S3200.size p) (fun _ => rfl)).view.set]{fullShare}
                  (((oW).slice (Rect.unit (s := S1600000) off S3200.size p) (fun _ => rfl)).view.writes (Elt F) f0 [⟨Rect.whole _, w⟩]))
            ∗ ((stg a).view.loc (thr d L) ↦[(stg a).view.set]{fullShare} gb))
        ∗ (a.view.loc (thr d L) ↦[Finset.univ \ (stg a).view.set]{fullShare} gb)) : sProp 𝕄)
      ⊢ outSlotV d L fx a sm (n + 2) := by
  subst h
  rw [outSlotV_pos d L fx (m := n + 2) ⟨by omega, by simpa using v⟩]
  iintro ⟨%w, %hw, H, R⟩
  have hD : (iprop(((outM L n).view.loc (thr d L) ↦[(outM L n).view.set]{fullShare} ((outM L n).view.writes (Elt F) f0 [⟨Rect.whole _, w⟩]))
          ∗ ((stg a).view.loc (thr d L) ↦[(stg a).view.set]{fullShare} gb)) : sProp 𝕄)
      ⊢ iprop(oqPiece d L fx (n + 2 - 2) ∗ ((stg a).view.loc (thr d L) ↦[(stg a).view.set]{fullShare} gb)) := by
    rw [Nat.add_sub_cancel]
    have e : (((outM L n).view.loc (thr d L) ↦[(outM L n).view.set]{fullShare} ((outM L n).view.writes (Elt F) f0 [⟨Rect.whole _, w⟩])) : sProp 𝕄)
        = oqPiece d L fx n := pointsTo_congr (out_written d L fx ar a n ga gb f0 w hw hl hr v)
    iintro ⟨H1, H2⟩
    isplitl [H1]
    · iapply (Entails.of_eq e); iexact H1
    · iexact H2
  iexists gb
  isplitl [H]
  · iapply (Transfers.Flight_mono countersEmb (thr d L) hD); iexact H
  · iexact R

/-- The result pieces outside the slots before trip `t`: those already written hold the row, the others some contents. -/
def oMix (t n : ℕ) : sProp 𝕄 := if n + 2 < 2 * t then oQ d L fx n else oP (F := F) d L n
theorem oMix_lt {t n : ℕ} (h : n + 2 < 2 * t) : oMix d L fx t n = oQ d L fx n := if_pos h
theorem oMix_ge {t n : ℕ} (h : ¬ n + 2 < 2 * t) : oMix d L fx t n = oP (F := F) d L n := if_neg h
theorem oMix_core (k : ℕ) : bigSep (oCore k) (oMix d L fx k) = bigSep (oCore k) (oMix d L fx (k + 1)) :=
  bigSep_congr fun n hn => by
    have hn' : n + 2 ≠ 2 * k ∧ n + 2 ≠ 2 * k + 1 ∧ n ≠ 2 * k ∧ n ≠ 2 * k + 1 := by
      simp only [oCore, Finset.mem_filter, Finset.mem_range] at hn; exact hn.2
    by_cases h : n + 2 < 2 * k
    · rw [oMix_lt d L fx h, oMix_lt d L fx (by omega)]
    · rw [oMix_ge d L fx h, oMix_ge d L fx (by omega)]
theorem oMix_zero : bigSep (oSet 0) (oMix d L fx 0) = bigSep (Finset.range 18) (oP (F := F) d L) := by
  rw [oSet_zero]; exact bigSep_congr fun n _ => oMix_ge d L fx (by omega)
theorem oMix_end : bigSep (oSet 8) (oMix d L fx 8) = bigSep (oSet 8) (oQ d L fx) :=
  bigSep_congr fun n hn => by
    have hn' : n < 18 ∧ n + 2 ≠ 16 ∧ n + 2 ≠ 17 := by simpa only [oSet, Finset.mem_filter, Finset.mem_range] using hn
    by_cases h : n + 2 < 2 * 8
    · exact oMix_lt d L fx h
    · rw [oMix_ge d L fx h, oP_neg (F := F) d L (by unfold valid; omega), oQ_neg d L fx (by unfold valid; omega)]

/-- The lane-copy loops: before trip `j` the first 16·j elements of the flat staging buffer are the staging row's. -/
def laneV0 (g4 : Buf (Elt F) ((a4).view.loc (thr d L))) (j : ℕ) (_ : PUnit) : sProp 𝕄 :=
  iprop(((a4).view.loc (thr d L) ↦{fullShare} g4) ∗ (∃ g, ((a6).view.loc (thr d L) ↦{fullShare} g) ∗ ⌜Lanes d L a4 a6 g4 g j⌝))
def laneV1 (g5 : Buf (Elt F) ((a5).view.loc (thr d L))) (j : ℕ) (_ : PUnit) : sProp 𝕄 :=
  iprop(((a5).view.loc (thr d L) ↦{fullShare} g5) ∗ (∃ g, ((a7).view.loc (thr d L) ↦{fullShare} g) ∗ ⌜Lanes d L a5 a7 g5 g j⌝))

def invV (t : ℕ) (_ : PUnit) : sProp 𝕄 :=
  iprop(Transfers.MayWaits (thr d L) (none : HIx 22) O
    ∗ (∃ W', ⌜∀ p ∈ W', p ∈ W ∨ p.2 = none⌝ ∗ owes (thr d L) O W')
    ∗ bigSep (xSet t) (xP d L fx) ∗ bigSep (oSet t) (oMix d L fx t)
    ∗ inSlotV d L fx a4 cc0_scratch4.sem (2 * t) ∗ outSlotV d L fx a6 cc0_scratch6.sem (2 * t)
    ∗ inSlotV d L fx a5 cc0_scratch5.sem (2 * t + 1) ∗ outSlotV d L fx a7 cc0_scratch7.sem (2 * t + 1))

/-- After the last trip nothing of the argument row is in a slot: the tile holds all its pieces. -/
theorem xRange_end : bigSep (xSet 8) (xP d L fx) ⊢ bigSep (Finset.range 18) (xP d L fx) := by
  rw [two_out (s := Finset.range 18) (a := 16) (b := 17) (by decide) (by decide) (by decide),
    show ((Finset.range 18).erase 16).erase 17 = xSet 8 by decide]
  iintro H
  isplitr; · iapply (Entails.of_eq (xP_neg d L fx (n := 16) (by unfold valid; omega)).symm); iempintro
  isplitr; · iapply (Entails.of_eq (xP_neg d L fx (n := 17) (by unfold valid; omega)).symm); iempintro
  iexact H
omit [FloatOps F] in
theorem oRange_end (Φ : ℕ → sProp 𝕄) : bigSep (Finset.range 18) Φ = iprop(Φ 14 ∗ Φ 15 ∗ bigSep (oSet 8) Φ) := by
  rw [two_out (s := Finset.range 18) (a := 14) (b := 15) (by decide) (by decide) (by decide),
    show ((Finset.range 18).erase 14).erase 15 = oSet 8 by decide]

/-- What the run starts from and ends with, beside an untouched rest `R`. -/
def runPre (R : sProp 𝕄) : sProp 𝕄 :=
    iprop(Transfers.MayWaits (thr d L) (none : HIx 22) O ∗ owes (thr d L) O W
        ∗ bigSep (Finset.range 18) (xP d L fx) ∗ bigSep (Finset.range 18) (oP (F := F) d L)
        ∗ (∃ g, (a4).view.loc (thr d L) ↦{fullShare} g) ∗ (∃ g, (a5).view.loc (thr d L) ↦{fullShare} g)
        ∗ (∃ g, (a6).view.loc (thr d L) ↦{fullShare} g) ∗ (∃ g, (a7).view.loc (thr d L) ↦{fullShare} g)
        ∗ semVal (thr d L, SemLoc.dma cc0_scratch4.sem) 0 ∗ semVal (thr d L, SemLoc.dma cc0_scratch5.sem) 0
        ∗ semVal (thr d L, SemLoc.dma cc0_scratch6.sem) 0 ∗ semVal (thr d L, SemLoc.dma cc0_scratch7.sem) 0 ∗ R)
def runPost (R : sProp 𝕄) : sProp 𝕄 :=
    iprop(bigSep (Finset.range 18) (xP d L fx) ∗ bigSep (Finset.range 18) (oQ d L fx)
            ∗ (∃ g, (a4).view.loc (thr d L) ↦{fullShare} g) ∗ (∃ g, (a5).view.loc (thr d L) ↦{fullShare} g)
            ∗ (∃ g, (a6).view.loc (thr d L) ↦{fullShare} g) ∗ (∃ g, (a7).view.loc (thr d L) ↦{fullShare} g)
            ∗ semVal (thr d L, SemLoc.dma cc0_scratch4.sem) 0 ∗ semVal (thr d L, SemLoc.dma cc0_scratch5.sem) 0
            ∗ semVal (thr d L, SemLoc.dma cc0_scratch6.sem) 0 ∗ semVal (thr d L, SemLoc.dma cc0_scratch7.sem) 0
            ∗ (∃ W', ⌜∀ p ∈ W', p ∈ W ∨ p.2 = none⌝ ∗ owes (thr d L) O W') ∗ R)

set_option maxHeartbeats 16000000 in
/-- The task's run: from its pieces of the argument row and of the result, the four staging buffers and the four
    semaphores at zero, to the same with every piece of the result holding the row's elements. -/
theorem tile_run (R : sProp 𝕄) :
    runPre d L O W fx R
      ⊢ wp frame (wpE (defs₀ (F := F)) 𝒱₀ (thr d L) none) Set.univ
          (cc0_sc_group L xtW (Memref.isWhole_whole _) oW (Memref.isWhole_whole _) a4 (Memref.isWhole_whole _) a5 (Memref.isWhole_whole _)
            a6 (Memref.isWhole_whole _) a7 (Memref.isWhole_whole _) cc0_scratch4 cc0_scratch5 cc0_scratch6 cc0_scratch7)
          fun _ => runPost d L O W fx R := by
  unfold runPre runPost
  have v0 : valid L 0 := Or.inl (by omega)
  have v1 : valid L 1 := Or.inl (by omega)
  have k0_h7 : k0_cond7 L = 1#1 := cond7_iff L
  iintro ⟨#Hmw, HO, HX, HOut, ⟨%g4, H4⟩, ⟨%g5, H5⟩, ⟨%g6, H6⟩, ⟨%g7, H7⟩, Hs8, Hs9, Hs10, Hs11, HR⟩
  ihave HX := (Entails.of_eq (xRange_split d L fx v0 v1)) $$ HX
  icases HX with ⟨X0, X1, HX⟩
  ihave X0 := (Entails.of_eq (in_congr d L (off_in0 L v0).symm (in_inb L _) (k0_off1_inb L 0) fx)) $$ X0
  ihave X1 := (Entails.of_eq (in_congr d L (off_in1 L v1).symm (in_inb L _) (k0_off1_inb L 1) fx)) $$ X1
  sl_unfold [cc0_sc_group]
  sl_exec
  ihave S8 := (fl_inV d L fx (off_in0 L v0) (k0_off1_inb L 0) v0 a4 cc0_scratch4.sem) $$ [Hs8]
  · iexists _, _
    isplitr
    rotate_left
    · iexact Hs8
    ipureintro; intro y; rfl
  ihave S9 := (fl_inV d L fx (off_in1 L v1) (k0_off1_inb L 1) v1 a5 cc0_scratch5.sem) $$ [Hs9]
  · iexists _, _
    isplitr
    rotate_left
    · iexact Hs9
    ipureintro; intro y; rfl
  sl_for (invV d L O W fx) $$ [HO HX HOut S8 S9 H6 H7 Hs10 Hs11]
  case region =>
    intro (k : Fin k0_t1_loop.trips) acc
    have hk : k.val < 8 := Nat.lt_of_lt_of_eq k.isLt trips1
    unfold invV
    iintro ⟨#Hmw, ⟨%W', %hW', HO⟩, HX, HOut, S8, S10, S9, S11⟩
    by_cases hk1 : 1 ≤ k.val
    · by_cases v3 : valid L (2 * k.val + 3)
      · -- the generic trip: both drains, both pieces worked, both next fetches issued
        have hk6 : k.val ≤ 6 := by unfold valid at v3; omega
        have k0_h1 : k0_cond1 k = 1#1 := (cond1_iff k).mpr (by omega)
        have k0_h2 : k0_cond2 L k = 1#1 := cond2_iff L k
        have k0_h3 : k0_cond3 L k = 1#1 := (cond3_iff L k).mpr (by omega)
        have k0_h4 : k0_cond4 k = 1#1 := (cond4_iff k).mpr (by omega)
        have k0_h5 : k0_cond5 L k = 1#1 := (cond5_iff L k).mpr (by first | (unfold valid big at *; omega) | (unfold big at *; omega) | omega)
        have k0_h6 : k0_cond6 L k = 1#1 := (cond6_iff L k).mpr (by first | (unfold valid big at *; omega) | (unfold big at *; omega) | omega)
        have v0 : valid L (2 * k.val) := by unfold valid big at *; omega
        have v1 : valid L (2 * k.val + 1) := by unfold valid big at *; omega
        have v2 : valid L (2 * k.val + 2) := by unfold valid big at *; omega
        have v3' : valid L (2 * k.val + 3) := by unfold valid big at *; omega
        have hm0 : 2 ≤ 2 * k.val ∧ valid L (2 * k.val - 2) := ⟨by omega, by unfold valid big at *; omega⟩
        have hm1 : 2 ≤ 2 * k.val + 1 ∧ valid L (2 * k.val + 1 - 2) := ⟨by omega, by unfold valid big at *; omega⟩
        ihave S8 := (Entails.of_eq (inSlotV_pos d L fx v0)) $$ S8
        icases S8 with ⟨%g4, %hin4, F8⟩
        ihave S9 := (Entails.of_eq (inSlotV_pos d L fx v1)) $$ S9
        icases S9 with ⟨%g5, %hin5, F9⟩
        ihave S10 := (Entails.of_eq (outSlotV_pos d L fx hm0)) $$ S10
        icases S10 with ⟨%g6, F10, R6⟩
        ihave S11 := (Entails.of_eq (outSlotV_pos d L fx hm1)) $$ S11
        icases S11 with ⟨%g7, F11, R7⟩
        ihave HX := (Entails.of_eq (xSet_out (xP d L fx) k.val hk)) $$ HX
        icases HX with ⟨X2, X3, HX⟩
        ihave X2 := (Entails.of_eq (xP_pos d L fx v2)) $$ X2
        ihave X2 := (Entails.of_eq (in_congr d L (off_6 L k v2).symm (in_inb L _) (k0_off6_inb L k k0_h3) fx)) $$ X2
        ihave X3 := (Entails.of_eq (xP_pos d L fx v3')) $$ X3
        ihave X3 := (Entails.of_eq (in_congr d L (off_11 L k v3').symm (in_inb L _) (k0_off11_inb L k k0_h6) fx)) $$ X3
        ihave HOut := (Entails.of_eq (oSet_out (oMix d L fx k.val) k.val hk)) $$ HOut
        icases HOut with ⟨Y0, Y1, HOut⟩
        ihave Y0 := (Entails.of_eq ((oMix_ge d L fx (t := k.val) (n := 2 * k.val) (by omega)).trans (oP_pos (F := F) d L v0))) $$ Y0
        icases Y0 with ⟨%f0, Y0⟩
        ihave Y0 := (Entails.of_eq (out_congr d L (off_5 L k v0).symm (out_inb L _) (k0_off5_inb L k k0_h2) f0)) $$ Y0
        ihave Y1 := (Entails.of_eq ((oMix_ge d L fx (t := k.val) (n := 2 * k.val + 1) (by omega)).trans (oP_pos (F := F) d L v1))) $$ Y1
        icases Y1 with ⟨%f1, Y1⟩
        ihave Y1 := (Entails.of_eq (out_congr d L (off_10 L k v1).symm (out_inb L _) (k0_off10_inb L k k0_h5) f1)) $$ Y1
        sl_exec
        sl_for (laneV0 d L g4) $$ [F8_dst R6]
        case region =>
          intro (j : Fin k0_t2_loop.trips) _
          unfold laneV0
          iintro ⟨HA, %g, HB, %hl⟩
          sl_exec
          sl_step
          isplitl [HA]; · iexact HA
          iexists _; isplitl [HB]; · iexact HB
          ipureintro; exact lanes_step d L a4 a6 g4 g j _ _ hl
        · unfold laneV0
          isplitl [F8_dst]; · iexact F8_dst
          iexists _; isplitl [R6]; · iexact R6
          ipureintro; exact lanes_zero d L a4 a6 g4 _
        iintro %_ HI
        unfold laneV0
        icases HI with ⟨H4, %g6', H6, %hl6⟩
        have hl6 : Lanes d L a4 a6 g4 g6' 200 := Eq.mp (congrArg (Lanes d L a4 a6 g4 g6') trips2) hl6
        sl_exec
        sl_for (laneV1 d L g5) $$ [F9_dst R7]
        case region =>
          intro (j : Fin k0_t3_loop.trips) _
          unfold laneV1
          iintro ⟨HA, %g, HB, %hl⟩
          sl_exec
          sl_step
          isplitl [HA]; · iexact HA
          iexists _; isplitl [HB]; · iexact HB
          ipureintro; exact lanes_step' d L a5 a7 g5 g j _ _ hl
        · unfold laneV1
          isplitl [F9_dst]; · iexact F9_dst
          iexists _; isplitl [R7]; · iexact R7
          ipureintro; exact lanes_zero d L a5 a7 g5 _
        iintro %_ HI
        unfold laneV1
        icases HI with ⟨H5, %g7', H7, %hl7⟩
        have hl7 : Lanes d L a5 a7 g5 g7' 200 := Eq.mp (congrArg (Lanes d L a5 a7 g5 g7') trips3) hl7
        sl_exec
        sl_step
        isplitr; · iexact Hmw
        isplitl [HO]
        · iexists _; isplitr
          rotate_left
          · iexact HO
          ipureintro; intro p hp
          rcases Finset.mem_insert.mp hp with rfl | hp
          · exact .inr rfl
          rcases Finset.mem_insert.mp hp with rfl | hp
          · exact .inr rfl
          rcases Finset.mem_insert.mp hp with rfl | hp
          · exact .inr rfl
          rcases Finset.mem_insert.mp hp with rfl | hp
          · exact .inr rfl
          exact hW' p hp
        isplitl [HX F8_src F9_src]
        · iapply (Entails.of_eq (xSet_in (xP d L fx) k.val hk).symm)
          isplitl [F8_src]; · iapply (Entails.of_eq (xP_pos d L fx v0).symm); iexact F8_src
          isplitl [F9_src]; · iapply (Entails.of_eq (xP_pos d L fx v1).symm); iexact F9_src
          iexact HX
        isplitl [HOut F10_dst F11_dst]
        · iapply (Entails.of_eq (oSet_in (oMix d L fx (k.val + 1)) k.val hk (by omega)).symm)
          isplitl [F10_dst]; · iapply (Entails.of_eq ((oMix_lt d L fx (t := k.val + 1) (n := 2 * k.val - 2) (by omega)).trans (oQ_pos d L fx hm0.2)).symm); iexact F10_dst
          isplitl [F11_dst]
          · iapply (Entails.of_eq ((oMix_lt d L fx (t := k.val + 1) (n := 2 * k.val - 1) (by omega)).trans (oQ_pos d L fx (n := 2 * k.val - 1) (by have := hm1.2; rwa [show 2 * k.val + 1 - 2 = 2 * k.val - 1 by omega] at this))).symm)
            iapply (Entails.of_eq (congrArg (oqPiece d L fx) (show 2 * k.val + 1 - 2 = 2 * k.val - 1 by omega))); iexact F11_dst
          iapply (Entails.of_eq (oMix_core d L fx k.val)); iexact HOut
        isplitl [F8]
        · iapply (Entails.of_eq (congrArg (inSlotV d L fx a4 cc0_scratch4.sem) (show 2 * k.val + 2 = 2 * (k.val + 1) by ring)))
          iapply (fl_inV d L fx (off_6 L k v2) (k0_off6_inb L k k0_h3) v2 a4 cc0_scratch4.sem); iexists _, _
          isplitr
          rotate_left
          · iexact F8
          ipureintro; intro y; rfl
        isplitl [F10 H6]
        · iapply (Entails.of_eq (congrArg (outSlotV d L fx a6 cc0_scratch6.sem) (show 2 * k.val + 2 = 2 * (k.val + 1) by ring)))
          iapply (fl_outV d L fx (off_5 L k v0) (k0_off5_inb L k k0_h2) v0 a4 a6 cc0_scratch6.sem f0 g4 g6' hl6 hin4); iexists _
          isplitr
          rotate_left
          · isplitl [F10]; · iexact F10
            iexact H6
          ipureintro; intro y; rfl
        isplitl [F9]
        · iapply (Entails.of_eq (congrArg (inSlotV d L fx a5 cc0_scratch5.sem) (show 2 * k.val + 3 = 2 * (k.val + 1) + 1 by ring)))
          iapply (fl_inV d L fx (off_11 L k v3') (k0_off11_inb L k k0_h6) v3' a5 cc0_scratch5.sem); iexists _, _
          isplitr
          rotate_left
          · iexact F9
          ipureintro; intro y; rfl
        · iapply (Entails.of_eq (congrArg (outSlotV d L fx a7 cc0_scratch7.sem) (show 2 * k.val + 1 + 2 = 2 * (k.val + 1) + 1 by ring)))
          iapply (fl_outV d L fx (off_10 L k v1) (k0_off10_inb L k k0_h5) v1 a5 a7 cc0_scratch7.sem f1 g5 g7' hl7 hin5); iexists _
          isplitr
          rotate_left
          · isplitl [F11]; · iexact F11
            iexact H7
          ipureintro; intro y; rfl
      · by_cases h6 : k.val = 6
        · have hb : ¬ big L := fun hb => v3 (Or.inr ⟨by omega, hb⟩)
          -- trip 6 of a tile with fifteen pieces: no sixteenth piece to fetch
          have k0_h1 : k0_cond1 k = 1#1 := (cond1_iff k).mpr (by omega)
          have k0_h2 : k0_cond2 L k = 1#1 := cond2_iff L k
          have k0_h3 : k0_cond3 L k = 1#1 := (cond3_iff L k).mpr (by omega)
          have k0_h4 : k0_cond4 k = 1#1 := (cond4_iff k).mpr (by omega)
          have k0_h5 : k0_cond5 L k = 1#1 := (cond5_iff L k).mpr (by first | (unfold valid big at *; omega) | (unfold big at *; omega) | omega)
          have k0_h6 : ¬ k0_cond6 L k = 1#1 := fun h => absurd ((cond6_iff L k).mp h) (by first | (unfold valid big at *; omega) | (unfold big at *; omega) | omega)
          have v0 : valid L (2 * k.val) := by unfold valid big at *; omega
          have v1 : valid L (2 * k.val + 1) := by unfold valid big at *; omega
          have v2 : valid L (2 * k.val + 2) := by unfold valid big at *; omega
          have v3' : ¬ valid L (2 * k.val + 3) := by unfold valid big at *; omega
          have hm0 : 2 ≤ 2 * k.val ∧ valid L (2 * k.val - 2) := ⟨by omega, by unfold valid big at *; omega⟩
          have hm1 : 2 ≤ 2 * k.val + 1 ∧ valid L (2 * k.val + 1 - 2) := ⟨by omega, by unfold valid big at *; omega⟩
          ihave S8 := (Entails.of_eq (inSlotV_pos d L fx v0)) $$ S8
          icases S8 with ⟨%g4, %hin4, F8⟩
          ihave S9 := (Entails.of_eq (inSlotV_pos d L fx v1)) $$ S9
          icases S9 with ⟨%g5, %hin5, F9⟩
          ihave S10 := (Entails.of_eq (outSlotV_pos d L fx hm0)) $$ S10
          icases S10 with ⟨%g6, F10, R6⟩
          ihave S11 := (Entails.of_eq (outSlotV_pos d L fx hm1)) $$ S11
          icases S11 with ⟨%g7, F11, R7⟩
          ihave HX := (Entails.of_eq (xSet_out (xP d L fx) k.val hk)) $$ HX
          icases HX with ⟨X2, -, HX⟩
          ihave X2 := (Entails.of_eq (xP_pos d L fx v2)) $$ X2
          ihave X2 := (Entails.of_eq (in_congr d L (off_6 L k v2).symm (in_inb L _) (k0_off6_inb L k k0_h3) fx)) $$ X2
          ihave HOut := (Entails.of_eq (oSet_out (oMix d L fx k.val) k.val hk)) $$ HOut
          icases HOut with ⟨Y0, Y1, HOut⟩
          ihave Y0 := (Entails.of_eq ((oMix_ge d L fx (t := k.val) (n := 2 * k.val) (by omega)).trans (oP_pos (F := F) d L v0))) $$ Y0
          icases Y0 with ⟨%f0, Y0⟩
          ihave Y0 := (Entails.of_eq (out_congr d L (off_5 L k v0).symm (out_inb L _) (k0_off5_inb L k k0_h2) f0)) $$ Y0
          ihave Y1 := (Entails.of_eq ((oMix_ge d L fx (t := k.val) (n := 2 * k.val + 1) (by omega)).trans (oP_pos (F := F) d L v1))) $$ Y1
          icases Y1 with ⟨%f1, Y1⟩
          ihave Y1 := (Entails.of_eq (out_congr d L (off_10 L k v1).symm (out_inb L _) (k0_off10_inb L k k0_h5) f1)) $$ Y1
          sl_exec
          sl_for (laneV0 d L g4) $$ [F8_dst R6]
          case region =>
            intro (j : Fin k0_t2_loop.trips) _
            unfold laneV0
            iintro ⟨HA, %g, HB, %hl⟩
            sl_exec
            sl_step
            isplitl [HA]; · iexact HA
            iexists _; isplitl [HB]; · iexact HB
            ipureintro; exact lanes_step d L a4 a6 g4 g j _ _ hl
          · unfold laneV0
            isplitl [F8_dst]; · iexact F8_dst
            iexists _; isplitl [R6]; · iexact R6
            ipureintro; exact lanes_zero d L a4 a6 g4 _
          iintro %_ HI
          unfold laneV0
          icases HI with ⟨H4, %g6', H6, %hl6⟩
          have hl6 : Lanes d L a4 a6 g4 g6' 200 := Eq.mp (congrArg (Lanes d L a4 a6 g4 g6') trips2) hl6
          sl_exec
          sl_for (laneV1 d L g5) $$ [F9_dst R7]
          case region =>
            intro (j : Fin k0_t3_loop.trips) _
            unfold laneV1
            iintro ⟨HA, %g, HB, %hl⟩
            sl_exec
            sl_step
            isplitl [HA]; · iexact HA
            iexists _; isplitl [HB]; · iexact HB
            ipureintro; exact lanes_step' d L a5 a7 g5 g j _ _ hl
          · unfold laneV1
            isplitl [F9_dst]; · iexact F9_dst
            iexists _; isplitl [R7]; · iexact R7
            ipureintro; exact lanes_zero d L a5 a7 g5 _
          iintro %_ HI
          unfold laneV1
          icases HI with ⟨H5, %g7', H7, %hl7⟩
          have hl7 : Lanes d L a5 a7 g5 g7' 200 := Eq.mp (congrArg (Lanes d L a5 a7 g5 g7') trips3) hl7
          sl_exec
          sl_step
          isplitr; · iexact Hmw
          isplitl [HO]
          · iexists _; isplitr
            rotate_left
            · iexact HO
            ipureintro; intro p hp
            rcases Finset.mem_insert.mp hp with rfl | hp
            · exact .inr rfl
            rcases Finset.mem_insert.mp hp with rfl | hp
            · exact .inr rfl
            rcases Finset.mem_insert.mp hp with rfl | hp
            · exact .inr rfl
            rcases Finset.mem_insert.mp hp with rfl | hp
            · exact .inr rfl
            exact hW' p hp
          isplitl [HX F8_src F9_src]
          · iapply (Entails.of_eq (xSet_in (xP d L fx) k.val hk).symm)
            isplitl [F8_src]; · iapply (Entails.of_eq (xP_pos d L fx v0).symm); iexact F8_src
            isplitl [F9_src]; · iapply (Entails.of_eq (xP_pos d L fx v1).symm); iexact F9_src
            iexact HX
          isplitl [HOut F10_dst F11_dst]
          · iapply (Entails.of_eq (oSet_in (oMix d L fx (k.val + 1)) k.val hk (by omega)).symm)
            isplitl [F10_dst]; · iapply (Entails.of_eq ((oMix_lt d L fx (t := k.val + 1) (n := 2 * k.val - 2) (by omega)).trans (oQ_pos d L fx hm0.2)).symm); iexact F10_dst
            isplitl [F11_dst]
            · iapply (Entails.of_eq ((oMix_lt d L fx (t := k.val + 1) (n := 2 * k.val - 1) (by omega)).trans (oQ_pos d L fx (n := 2 * k.val - 1) (by have := hm1.2; rwa [show 2 * k.val + 1 - 2 = 2 * k.val - 1 by omega] at this))).symm)
              iapply (Entails.of_eq (congrArg (oqPiece d L fx) (show 2 * k.val + 1 - 2 = 2 * k.val - 1 by omega))); iexact F11_dst
            iapply (Entails.of_eq (oMix_core d L fx k.val)); iexact HOut
          isplitl [F8]
          · iapply (Entails.of_eq (congrArg (inSlotV d L fx a4 cc0_scratch4.sem) (show 2 * k.val + 2 = 2 * (k.val + 1) by ring)))
            iapply (fl_inV d L fx (off_6 L k v2) (k0_off6_inb L k k0_h3) v2 a4 cc0_scratch4.sem); iexists _, _
            isplitr
            rotate_left
            · iexact F8
            ipureintro; intro y; rfl
          isplitl [F10 H6]
          · iapply (Entails.of_eq (congrArg (outSlotV d L fx a6 cc0_scratch6.sem) (show 2 * k.val + 2 = 2 * (k.val + 1) by ring)))
            iapply (fl_outV d L fx (off_5 L k v0) (k0_off5_inb L k k0_h2) v0 a4 a6 cc0_scratch6.sem f0 g4 g6' hl6 hin4); iexists _
            isplitr
            rotate_left
            · isplitl [F10]; · iexact F10
              iexact H6
            ipureintro; intro y; rfl
          isplitl [H5 F9]
          · iapply (Entails.of_eq (congrArg (inSlotV d L fx a5 cc0_scratch5.sem) (show 2 * k.val + 3 = 2 * (k.val + 1) + 1 by ring)))
            iapply (Entails.of_eq (inSlotV_neg d L fx v3').symm)
            isplitl [H5]; · iexists _; iexact H5
            iexact F9
          · iapply (Entails.of_eq (congrArg (outSlotV d L fx a7 cc0_scratch7.sem) (show 2 * k.val + 1 + 2 = 2 * (k.val + 1) + 1 by ring)))
            iapply (fl_outV d L fx (off_10 L k v1) (k0_off10_inb L k k0_h5) v1 a5 a7 cc0_scratch7.sem f1 g5 g7' hl7 hin5); iexists _
            isplitr
            rotate_left
            · isplitl [F11]; · iexact F11
              iexact H7
            ipureintro; intro y; rfl
        · have h7 : k.val = 7 := by unfold valid at v3; omega
          by_cases hb : big L
          · -- the last trip of a tile with sixteen pieces: nothing more to fetch
            have k0_h1 : k0_cond1 k = 1#1 := (cond1_iff k).mpr (by omega)
            have k0_h2 : k0_cond2 L k = 1#1 := cond2_iff L k
            have k0_h3 : ¬ k0_cond3 L k = 1#1 := fun h => absurd ((cond3_iff L k).mp h) (by omega)
            have k0_h4 : k0_cond4 k = 1#1 := (cond4_iff k).mpr (by omega)
            have k0_h5 : k0_cond5 L k = 1#1 := (cond5_iff L k).mpr (by first | (unfold valid big at *; omega) | (unfold big at *; omega) | omega)
            have k0_h6 : ¬ k0_cond6 L k = 1#1 := fun h => absurd ((cond6_iff L k).mp h) (by first | (unfold valid big at *; omega) | (unfold big at *; omega) | omega)
            have v0 : valid L (2 * k.val) := by unfold valid big at *; omega
            have v1 : valid L (2 * k.val + 1) := by unfold valid big at *; omega
            have v2 : ¬ valid L (2 * k.val + 2) := by unfold valid big at *; omega
            have v3' : ¬ valid L (2 * k.val + 3) := by unfold valid big at *; omega
            have hm0 : 2 ≤ 2 * k.val ∧ valid L (2 * k.val - 2) := ⟨by omega, by unfold valid big at *; omega⟩
            have hm1 : 2 ≤ 2 * k.val + 1 ∧ valid L (2 * k.val + 1 - 2) := ⟨by omega, by unfold valid big at *; omega⟩
            ihave S8 := (Entails.of_eq (inSlotV_pos d L fx v0)) $$ S8
            icases S8 with ⟨%g4, %hin4, F8⟩
            ihave S9 := (Entails.of_eq (inSlotV_pos d L fx v1)) $$ S9
            icases S9 with ⟨%g5, %hin5, F9⟩
            ihave S10 := (Entails.of_eq (outSlotV_pos d L fx hm0)) $$ S10
            icases S10 with ⟨%g6, F10, R6⟩
            ihave S11 := (Entails.of_eq (outSlotV_pos d L fx hm1)) $$ S11
            icases S11 with ⟨%g7, F11, R7⟩
            ihave HX := (Entails.of_eq (xSet_out (xP d L fx) k.val hk)) $$ HX
            icases HX with ⟨-, -, HX⟩
            ihave HOut := (Entails.of_eq (oSet_out (oMix d L fx k.val) k.val hk)) $$ HOut
            icases HOut with ⟨Y0, Y1, HOut⟩
            ihave Y0 := (Entails.of_eq ((oMix_ge d L fx (t := k.val) (n := 2 * k.val) (by omega)).trans (oP_pos (F := F) d L v0))) $$ Y0
            icases Y0 with ⟨%f0, Y0⟩
            ihave Y0 := (Entails.of_eq (out_congr d L (off_5 L k v0).symm (out_inb L _) (k0_off5_inb L k k0_h2) f0)) $$ Y0
            ihave Y1 := (Entails.of_eq ((oMix_ge d L fx (t := k.val) (n := 2 * k.val + 1) (by omega)).trans (oP_pos (F := F) d L v1))) $$ Y1
            icases Y1 with ⟨%f1, Y1⟩
            ihave Y1 := (Entails.of_eq (out_congr d L (off_10 L k v1).symm (out_inb L _) (k0_off10_inb L k k0_h5) f1)) $$ Y1
            sl_exec
            sl_for (laneV0 d L g4) $$ [F8_dst R6]
            case region =>
              intro (j : Fin k0_t2_loop.trips) _
              unfold laneV0
              iintro ⟨HA, %g, HB, %hl⟩
              sl_exec
              sl_step
              isplitl [HA]; · iexact HA
              iexists _; isplitl [HB]; · iexact HB
              ipureintro; exact lanes_step d L a4 a6 g4 g j _ _ hl
            · unfold laneV0
              isplitl [F8_dst]; · iexact F8_dst
              iexists _; isplitl [R6]; · iexact R6
              ipureintro; exact lanes_zero d L a4 a6 g4 _
            iintro %_ HI
            unfold laneV0
            icases HI with ⟨H4, %g6', H6, %hl6⟩
            have hl6 : Lanes d L a4 a6 g4 g6' 200 := Eq.mp (congrArg (Lanes d L a4 a6 g4 g6') trips2) hl6
            sl_exec
            sl_for (laneV1 d L g5) $$ [F9_dst R7]
            case region =>
              intro (j : Fin k0_t3_loop.trips) _
              unfold laneV1
              iintro ⟨HA, %g, HB, %hl⟩
              sl_exec
              sl_step
              isplitl [HA]; · iexact HA
              iexists _; isplitl [HB]; · iexact HB
              ipureintro; exact lanes_step' d L a5 a7 g5 g j _ _ hl
            · unfold laneV1
              isplitl [F9_dst]; · iexact F9_dst
              iexists _; isplitl [R7]; · iexact R7
              ipureintro; exact lanes_zero d L a5 a7 g5 _
            iintro %_ HI
            unfold laneV1
            icases HI with ⟨H5, %g7', H7, %hl7⟩
            have hl7 : Lanes d L a5 a7 g5 g7' 200 := Eq.mp (congrArg (Lanes d L a5 a7 g5 g7') trips3) hl7
            sl_exec
            sl_step
            isplitr; · iexact Hmw
            isplitl [HO]
            · iexists _; isplitr
              rotate_left
              · iexact HO
              ipureintro; intro p hp
              rcases Finset.mem_insert.mp hp with rfl | hp
              · exact .inr rfl
              rcases Finset.mem_insert.mp hp with rfl | hp
              · exact .inr rfl
              rcases Finset.mem_insert.mp hp with rfl | hp
              · exact .inr rfl
              rcases Finset.mem_insert.mp hp with rfl | hp
              · exact .inr rfl
              exact hW' p hp
            isplitl [HX F8_src F9_src]
            · iapply (Entails.of_eq (xSet_in (xP d L fx) k.val hk).symm)
              isplitl [F8_src]; · iapply (Entails.of_eq (xP_pos d L fx v0).symm); iexact F8_src
              isplitl [F9_src]; · iapply (Entails.of_eq (xP_pos d L fx v1).symm); iexact F9_src
              iexact HX
            isplitl [HOut F10_dst F11_dst]
            · iapply (Entails.of_eq (oSet_in (oMix d L fx (k.val + 1)) k.val hk (by omega)).symm)
              isplitl [F10_dst]; · iapply (Entails.of_eq ((oMix_lt d L fx (t := k.val + 1) (n := 2 * k.val - 2) (by omega)).trans (oQ_pos d L fx hm0.2)).symm); iexact F10_dst
              isplitl [F11_dst]
              · iapply (Entails.of_eq ((oMix_lt d L fx (t := k.val + 1) (n := 2 * k.val - 1) (by omega)).trans (oQ_pos d L fx (n := 2 * k.val - 1) (by have := hm1.2; rwa [show 2 * k.val + 1 - 2 = 2 * k.val - 1 by omega] at this))).symm)
                iapply (Entails.of_eq (congrArg (oqPiece d L fx) (show 2 * k.val + 1 - 2 = 2 * k.val - 1 by omega))); iexact F11_dst
              iapply (Entails.of_eq (oMix_core d L fx k.val)); iexact HOut
            isplitl [H4 F8]
            · iapply (Entails.of_eq (congrArg (inSlotV d L fx a4 cc0_scratch4.sem) (show 2 * k.val + 2 = 2 * (k.val + 1) by ring)))
              iapply (Entails.of_eq (inSlotV_neg d L fx v2).symm)
              isplitl [H4]; · iexists _; iexact H4
              iexact F8
            isplitl [F10 H6]
            · iapply (Entails.of_eq (congrArg (outSlotV d L fx a6 cc0_scratch6.sem) (show 2 * k.val + 2 = 2 * (k.val + 1) by ring)))
              iapply (fl_outV d L fx (off_5 L k v0) (k0_off5_inb L k k0_h2) v0 a4 a6 cc0_scratch6.sem f0 g4 g6' hl6 hin4); iexists _
              isplitr
              rotate_left
              · isplitl [F10]; · iexact F10
                iexact H6
              ipureintro; intro y; rfl
            isplitl [H5 F9]
            · iapply (Entails.of_eq (congrArg (inSlotV d L fx a5 cc0_scratch5.sem) (show 2 * k.val + 3 = 2 * (k.val + 1) + 1 by ring)))
              iapply (Entails.of_eq (inSlotV_neg d L fx v3').symm)
              isplitl [H5]; · iexists _; iexact H5
              iexact F9
            · iapply (Entails.of_eq (congrArg (outSlotV d L fx a7 cc0_scratch7.sem) (show 2 * k.val + 1 + 2 = 2 * (k.val + 1) + 1 by ring)))
              iapply (fl_outV d L fx (off_10 L k v1) (k0_off10_inb L k k0_h5) v1 a5 a7 cc0_scratch7.sem f1 g5 g7' hl7 hin5); iexists _
              isplitr
              rotate_left
              · isplitl [F11]; · iexact F11
                iexact H7
              ipureintro; intro y; rfl
          · -- the last trip of a tile with fifteen pieces: the second slot only drains
            have k0_h1 : k0_cond1 k = 1#1 := (cond1_iff k).mpr (by omega)
            have k0_h2 : k0_cond2 L k = 1#1 := cond2_iff L k
            have k0_h3 : ¬ k0_cond3 L k = 1#1 := fun h => absurd ((cond3_iff L k).mp h) (by omega)
            have k0_h4 : k0_cond4 k = 1#1 := (cond4_iff k).mpr (by omega)
            have k0_h5 : ¬ k0_cond5 L k = 1#1 := fun h => absurd ((cond5_iff L k).mp h) (by first | (unfold valid big at *; omega) | (unfold big at *; omega) | omega)
            have k0_h6 : ¬ k0_cond6 L k = 1#1 := fun h => absurd ((cond6_iff L k).mp h) (by first | (unfold valid big at *; omega) | (unfold big at *; omega) | omega)
            have v0 : valid L (2 * k.val) := by unfold valid big at *; omega
            have v1 : ¬ valid L (2 * k.val + 1) := by unfold valid big at *; omega
            have v2 : ¬ valid L (2 * k.val + 2) := by unfold valid big at *; omega
            have v3' : ¬ valid L (2 * k.val + 3) := by unfold valid big at *; omega
            have hm0 : 2 ≤ 2 * k.val ∧ valid L (2 * k.val - 2) := ⟨by omega, by unfold valid big at *; omega⟩
            have hm1 : 2 ≤ 2 * k.val + 1 ∧ valid L (2 * k.val + 1 - 2) := ⟨by omega, by unfold valid big at *; omega⟩
            ihave S8 := (Entails.of_eq (inSlotV_pos d L fx v0)) $$ S8
            icases S8 with ⟨%g4, %hin4, F8⟩
            ihave S9 := (Entails.of_eq (inSlotV_neg d L fx v1)) $$ S9
            icases S9 with ⟨⟨%g5, H5⟩, F9⟩
            ihave S10 := (Entails.of_eq (outSlotV_pos d L fx hm0)) $$ S10
            icases S10 with ⟨%g6, F10, R6⟩
            ihave S11 := (Entails.of_eq (outSlotV_pos d L fx hm1)) $$ S11
            icases S11 with ⟨%g7, F11, R7⟩
            ihave HX := (Entails.of_eq (xSet_out (xP d L fx) k.val hk)) $$ HX
            icases HX with ⟨-, -, HX⟩
            ihave HOut := (Entails.of_eq (oSet_out (oMix d L fx k.val) k.val hk)) $$ HOut
            icases HOut with ⟨Y0, -, HOut⟩
            ihave Y0 := (Entails.of_eq ((oMix_ge d L fx (t := k.val) (n := 2 * k.val) (by omega)).trans (oP_pos (F := F) d L v0))) $$ Y0
            icases Y0 with ⟨%f0, Y0⟩
            ihave Y0 := (Entails.of_eq (out_congr d L (off_5 L k v0).symm (out_inb L _) (k0_off5_inb L k k0_h2) f0)) $$ Y0
            sl_exec
            sl_for (laneV0 d L g4) $$ [F8_dst R6]
            case region =>
              intro (j : Fin k0_t2_loop.trips) _
              unfold laneV0
              iintro ⟨HA, %g, HB, %hl⟩
              sl_exec
              sl_step
              isplitl [HA]; · iexact HA
              iexists _; isplitl [HB]; · iexact HB
              ipureintro; exact lanes_step d L a4 a6 g4 g j _ _ hl
            · unfold laneV0
              isplitl [F8_dst]; · iexact F8_dst
              iexists _; isplitl [R6]; · iexact R6
              ipureintro; exact lanes_zero d L a4 a6 g4 _
            iintro %_ HI
            unfold laneV0
            icases HI with ⟨H4, %g6', H6, %hl6⟩
            have hl6 : Lanes d L a4 a6 g4 g6' 200 := Eq.mp (congrArg (Lanes d L a4 a6 g4 g6') trips2) hl6
            sl_exec
            sl_step
            isplitr; · iexact Hmw
            isplitl [HO]
            · iexists _; isplitr
              rotate_left
              · iexact HO
              ipureintro; intro p hp
              rcases Finset.mem_insert.mp hp with rfl | hp
              · exact .inr rfl
              rcases Finset.mem_insert.mp hp with rfl | hp
              · exact .inr rfl
              rcases Finset.mem_insert.mp hp with rfl | hp
              · exact .inr rfl
              exact hW' p hp
            isplitl [HX F8_src]
            · iapply (Entails.of_eq (xSet_in (xP d L fx) k.val hk).symm)
              isplitl [F8_src]; · iapply (Entails.of_eq (xP_pos d L fx v0).symm); iexact F8_src
              isplitr; · iapply (Entails.of_eq (xP_neg d L fx v1).symm); iempintro
              iexact HX
            isplitl [HOut F10_dst F11_dst]
            · iapply (Entails.of_eq (oSet_in (oMix d L fx (k.val + 1)) k.val hk (by omega)).symm)
              isplitl [F10_dst]; · iapply (Entails.of_eq ((oMix_lt d L fx (t := k.val + 1) (n := 2 * k.val - 2) (by omega)).trans (oQ_pos d L fx hm0.2)).symm); iexact F10_dst
              isplitl [F11_dst]
              · iapply (Entails.of_eq ((oMix_lt d L fx (t := k.val + 1) (n := 2 * k.val - 1) (by omega)).trans (oQ_pos d L fx (n := 2 * k.val - 1) (by have := hm1.2; rwa [show 2 * k.val + 1 - 2 = 2 * k.val - 1 by omega] at this))).symm)
                iapply (Entails.of_eq (congrArg (oqPiece d L fx) (show 2 * k.val + 1 - 2 = 2 * k.val - 1 by omega))); iexact F11_dst
              iapply (Entails.of_eq (oMix_core d L fx k.val)); iexact HOut
            isplitl [H4 F8]
            · iapply (Entails.of_eq (congrArg (inSlotV d L fx a4 cc0_scratch4.sem) (show 2 * k.val + 2 = 2 * (k.val + 1) by ring)))
              iapply (Entails.of_eq (inSlotV_neg d L fx v2).symm)
              isplitl [H4]; · iexists _; iexact H4
              iexact F8
            isplitl [F10 H6]
            · iapply (Entails.of_eq (congrArg (outSlotV d L fx a6 cc0_scratch6.sem) (show 2 * k.val + 2 = 2 * (k.val + 1) by ring)))
              iapply (fl_outV d L fx (off_5 L k v0) (k0_off5_inb L k k0_h2) v0 a4 a6 cc0_scratch6.sem f0 g4 g6' hl6 hin4); iexists _
              isplitr
              rotate_left
              · isplitl [F10]; · iexact F10
                iexact H6
              ipureintro; intro y; rfl
            isplitl [H5 F9]
            · iapply (Entails.of_eq (congrArg (inSlotV d L fx a5 cc0_scratch5.sem) (show 2 * k.val + 3 = 2 * (k.val + 1) + 1 by ring)))
              iapply (Entails.of_eq (inSlotV_neg d L fx v3').symm)
              isplitl [H5]; · iexists _; iexact H5
              iexact F9
            · iapply (Entails.of_eq (outSlotV_neg d L fx (m := 2 * (k.val + 1) + 1) (by intro h; apply v1; have := h.2; rwa [show 2 * (k.val + 1) + 1 - 2 = 2 * k.val + 1 by omega] at this)).symm)
              isplitl [R7]; · iexists _; iexact R7
              iexact F11
    · have hk0 : k.val = 0 := by omega
      -- the first trip: nothing to drain
      have k0_h1 : ¬ k0_cond1 k = 1#1 := fun h => absurd ((cond1_iff k).mp h) (by omega)
      have k0_h2 : k0_cond2 L k = 1#1 := cond2_iff L k
      have k0_h3 : k0_cond3 L k = 1#1 := (cond3_iff L k).mpr (by omega)
      have k0_h4 : ¬ k0_cond4 k = 1#1 := fun h => absurd ((cond4_iff k).mp h) (by omega)
      have k0_h5 : k0_cond5 L k = 1#1 := (cond5_iff L k).mpr (by first | (unfold valid big at *; omega) | (unfold big at *; omega) | omega)
      have k0_h6 : k0_cond6 L k = 1#1 := (cond6_iff L k).mpr (by first | (unfold valid big at *; omega) | (unfold big at *; omega) | omega)
      have v0 : valid L (2 * k.val) := by unfold valid big at *; omega
      have v1 : valid L (2 * k.val + 1) := by unfold valid big at *; omega
      have v2 : valid L (2 * k.val + 2) := by unfold valid big at *; omega
      have v3' : valid L (2 * k.val + 3) := by unfold valid big at *; omega
      have hm0 : ¬ (2 ≤ 2 * k.val ∧ valid L (2 * k.val - 2)) := by omega
      have hm1 : ¬ (2 ≤ 2 * k.val + 1 ∧ valid L (2 * k.val + 1 - 2)) := by omega
      ihave S8 := (Entails.of_eq (inSlotV_pos d L fx v0)) $$ S8
      icases S8 with ⟨%g4, %hin4, F8⟩
      ihave S9 := (Entails.of_eq (inSlotV_pos d L fx v1)) $$ S9
      icases S9 with ⟨%g5, %hin5, F9⟩
      ihave S10 := (Entails.of_eq (outSlotV_neg d L fx hm0)) $$ S10
      icases S10 with ⟨⟨%g6, R6⟩, F10⟩
      ihave S11 := (Entails.of_eq (outSlotV_neg d L fx hm1)) $$ S11
      icases S11 with ⟨⟨%g7, R7⟩, F11⟩
      ihave HX := (Entails.of_eq (xSet_out (xP d L fx) k.val hk)) $$ HX
      icases HX with ⟨X2, X3, HX⟩
      ihave X2 := (Entails.of_eq (xP_pos d L fx v2)) $$ X2
      ihave X2 := (Entails.of_eq (in_congr d L (off_6 L k v2).symm (in_inb L _) (k0_off6_inb L k k0_h3) fx)) $$ X2
      ihave X3 := (Entails.of_eq (xP_pos d L fx v3')) $$ X3
      ihave X3 := (Entails.of_eq (in_congr d L (off_11 L k v3').symm (in_inb L _) (k0_off11_inb L k k0_h6) fx)) $$ X3
      ihave HOut := (Entails.of_eq (oSet_out (oMix d L fx k.val) k.val hk)) $$ HOut
      icases HOut with ⟨Y0, Y1, HOut⟩
      ihave Y0 := (Entails.of_eq ((oMix_ge d L fx (t := k.val) (n := 2 * k.val) (by omega)).trans (oP_pos (F := F) d L v0))) $$ Y0
      icases Y0 with ⟨%f0, Y0⟩
      ihave Y0 := (Entails.of_eq (out_congr d L (off_5 L k v0).symm (out_inb L _) (k0_off5_inb L k k0_h2) f0)) $$ Y0
      ihave Y1 := (Entails.of_eq ((oMix_ge d L fx (t := k.val) (n := 2 * k.val + 1) (by omega)).trans (oP_pos (F := F) d L v1))) $$ Y1
      icases Y1 with ⟨%f1, Y1⟩
      ihave Y1 := (Entails.of_eq (out_congr d L (off_10 L k v1).symm (out_inb L _) (k0_off10_inb L k k0_h5) f1)) $$ Y1
      sl_exec
      sl_for (laneV0 d L g4) $$ [F8_dst R6]
      case region =>
        intro (j : Fin k0_t2_loop.trips) _
        unfold laneV0
        iintro ⟨HA, %g, HB, %hl⟩
        sl_exec
        sl_step
        isplitl [HA]; · iexact HA
        iexists _; isplitl [HB]; · iexact HB
        ipureintro; exact lanes_step d L a4 a6 g4 g j _ _ hl
      · unfold laneV0
        isplitl [F8_dst]; · iexact F8_dst
        iexists _; isplitl [R6]; · iexact R6
        ipureintro; exact lanes_zero d L a4 a6 g4 _
      iintro %_ HI
      unfold laneV0
      icases HI with ⟨H4, %g6', H6, %hl6⟩
      have hl6 : Lanes d L a4 a6 g4 g6' 200 := Eq.mp (congrArg (Lanes d L a4 a6 g4 g6') trips2) hl6
      sl_exec
      sl_for (laneV1 d L g5) $$ [F9_dst R7]
      case region =>
        intro (j : Fin k0_t3_loop.trips) _
        unfold laneV1
        iintro ⟨HA, %g, HB, %hl⟩
        sl_exec
        sl_step
        isplitl [HA]; · iexact HA
        iexists _; isplitl [HB]; · iexact HB
        ipureintro; exact lanes_step' d L a5 a7 g5 g j _ _ hl
      · unfold laneV1
        isplitl [F9_dst]; · iexact F9_dst
        iexists _; isplitl [R7]; · iexact R7
        ipureintro; exact lanes_zero d L a5 a7 g5 _
      iintro %_ HI
      unfold laneV1
      icases HI with ⟨H5, %g7', H7, %hl7⟩
      have hl7 : Lanes d L a5 a7 g5 g7' 200 := Eq.mp (congrArg (Lanes d L a5 a7 g5 g7') trips3) hl7
      sl_exec
      sl_step
      isplitr; · iexact Hmw
      isplitl [HO]
      · iexists _; isplitr
        rotate_left
        · iexact HO
        ipureintro; intro p hp
        rcases Finset.mem_insert.mp hp with rfl | hp
        · exact .inr rfl
        rcases Finset.mem_insert.mp hp with rfl | hp
        · exact .inr rfl
        exact hW' p hp
      isplitl [HX F8_src F9_src]
      · iapply (Entails.of_eq (xSet_in (xP d L fx) k.val hk).symm)
        isplitl [F8_src]; · iapply (Entails.of_eq (xP_pos d L fx v0).symm); iexact F8_src
        isplitl [F9_src]; · iapply (Entails.of_eq (xP_pos d L fx v1).symm); iexact F9_src
        iexact HX
      isplitl [HOut]
      · iapply (Entails.of_eq (congrArg (fun s => bigSep s (oMix d L fx (k.val + 1))) (show oCore k.val = oSet (k.val + 1) by rw [hk0]; decide)))
        iapply (Entails.of_eq (oMix_core d L fx k.val)); iexact HOut
      isplitl [F8]
      · iapply (Entails.of_eq (congrArg (inSlotV d L fx a4 cc0_scratch4.sem) (show 2 * k.val + 2 = 2 * (k.val + 1) by ring)))
        iapply (fl_inV d L fx (off_6 L k v2) (k0_off6_inb L k k0_h3) v2 a4 cc0_scratch4.sem); iexists _, _
        isplitr
        rotate_left
        · iexact F8
        ipureintro; intro y; rfl
      isplitl [F10 H6]
      · iapply (Entails.of_eq (congrArg (outSlotV d L fx a6 cc0_scratch6.sem) (show 2 * k.val + 2 = 2 * (k.val + 1) by ring)))
        iapply (fl_outV d L fx (off_5 L k v0) (k0_off5_inb L k k0_h2) v0 a4 a6 cc0_scratch6.sem f0 g4 g6' hl6 hin4); iexists _
        isplitr
        rotate_left
        · isplitl [F10]; · iexact F10
          iexact H6
        ipureintro; intro y; rfl
      isplitl [F9]
      · iapply (Entails.of_eq (congrArg (inSlotV d L fx a5 cc0_scratch5.sem) (show 2 * k.val + 3 = 2 * (k.val + 1) + 1 by ring)))
        iapply (fl_inV d L fx (off_11 L k v3') (k0_off11_inb L k k0_h6) v3' a5 cc0_scratch5.sem); iexists _, _
        isplitr
        rotate_left
        · iexact F9
        ipureintro; intro y; rfl
      · iapply (Entails.of_eq (congrArg (outSlotV d L fx a7 cc0_scratch7.sem) (show 2 * k.val + 1 + 2 = 2 * (k.val + 1) + 1 by ring)))
        iapply (fl_outV d L fx (off_10 L k v1) (k0_off10_inb L k k0_h5) v1 a5 a7 cc0_scratch7.sem f1 g5 g7' hl7 hin5); iexists _
        isplitr
        rotate_left
        · isplitl [F11]; · iexact F11
          iexact H7
        ipureintro; intro y; rfl
  · unfold invV
    isplitr; · iexact Hmw
    isplitl [HO]
    · iexists W; isplitr
      · ipureintro; exact fun p hp => .inl hp
      · iexact HO
    isplitl [HX]; · iexact HX
    isplitl [HOut]; · iapply (Entails.of_eq (oMix_zero d L fx).symm); iexact HOut
    isplitl [S8]; · iexact S8
    isplitl [H6 Hs10]
    · rw [outSlotV_neg d L fx (by omega)]; isplitl [H6]; · iexists _; iexact H6
      iexact Hs10
    isplitl [S9]; · iexact S9
    rw [outSlotV_neg d L fx (by omega)]; isplitl [H7]; · iexists _; iexact H7
    iexact Hs11
  iintro %acc' HI
  ihave HI := (Entails.of_eq (congrArg (fun t => invV d L O W fx t acc') trips1)) $$ HI
  unfold invV
  icases HI with ⟨-, ⟨%W', %hW', HO⟩, HX, HOut, S8, S10, S9, S11⟩
  have nv16 : ¬ valid L (2 * 8) := by unfold valid; omega
  have nv17 : ¬ valid L (2 * 8 + 1) := by unfold valid; omega
  have hm14 : 2 ≤ 2 * 8 ∧ valid L (2 * 8 - 2) := ⟨by omega, Or.inl (by omega)⟩
  ihave S8 := (Entails.of_eq (inSlotV_neg d L fx nv16)) $$ S8
  icases S8 with ⟨⟨%g4', H4⟩, Hs8⟩
  ihave S9 := (Entails.of_eq (inSlotV_neg d L fx nv17)) $$ S9
  icases S9 with ⟨⟨%g5', H5⟩, Hs9⟩
  ihave S10 := (Entails.of_eq (outSlotV_pos d L fx hm14)) $$ S10
  icases S10 with ⟨%g6', F10, R6⟩
  by_cases hb : big L
  · have k0_h8 : k0_cond8 L = 1#1 := (cond8_iff L).mpr hb
    have hm15 : 2 ≤ 2 * 8 + 1 ∧ valid L (2 * 8 + 1 - 2) := ⟨by omega, Or.inr ⟨by omega, hb⟩⟩
    ihave S11 := (Entails.of_eq (outSlotV_pos d L fx hm15)) $$ S11
    icases S11 with ⟨%g7', F11, R7⟩
    sl_exec
    sl_step
    isplitl [HX]; · iapply (xRange_end d L fx); iexact HX
    isplitl [HOut F10_dst F11_dst]
    · iapply (Entails.of_eq (oRange_end (oQ d L fx)).symm)
      isplitl [F10_dst]; · iapply (Entails.of_eq (oQ_pos d L fx hm14.2).symm); iexact F10_dst
      isplitl [F11_dst]; · iapply (Entails.of_eq (oQ_pos d L fx hm15.2).symm); iexact F11_dst
      iapply (Entails.of_eq (oMix_end d L fx)); iexact HOut
    isplitl [H4]; · iexists _; iexact H4
    isplitl [H5]; · iexists _; iexact H5
    isplitl [R6]; · iexists _; iexact R6
    isplitl [R7]; · iexists _; iexact R7
    isplitl [Hs8]; · iexact Hs8
    isplitl [Hs9]; · iexact Hs9
    isplitl [F10]; · iexact F10
    isplitl [F11]; · iexact F11
    isplitl [HO]
    · iexists _; isplitr
      rotate_left
      · iexact HO
      ipureintro; intro p hp
      rcases Finset.mem_insert.mp hp with rfl | hp
      · exact .inr rfl
      rcases Finset.mem_insert.mp hp with rfl | hp
      · exact .inr rfl
      exact hW' p hp
    iexact HR
  · have k0_h8 : ¬ k0_cond8 L = 1#1 := fun h => hb ((cond8_iff L).mp h)
    have hm15 : ¬ (2 ≤ 2 * 8 + 1 ∧ valid L (2 * 8 + 1 - 2)) := by intro h; have := h.2; unfold valid at this; omega
    ihave S11 := (Entails.of_eq (outSlotV_neg d L fx hm15)) $$ S11
    icases S11 with ⟨⟨%g7', R7⟩, F11⟩
    sl_exec
    sl_step
    isplitl [HX]; · iapply (xRange_end d L fx); iexact HX
    isplitl [HOut F10_dst]
    · iapply (Entails.of_eq (oRange_end (oQ d L fx)).symm)
      isplitl [F10_dst]; · iapply (Entails.of_eq (oQ_pos d L fx hm14.2).symm); iexact F10_dst
      isplitr; · iapply (Entails.of_eq (oQ_neg d L fx (n := 15) (by unfold valid; omega)).symm); iempintro
      iapply (Entails.of_eq (oMix_end d L fx)); iexact HOut
    isplitl [H4]; · iexists _; iexact H4
    isplitl [H5]; · iexists _; iexact H5
    isplitl [R6]; · iexists _; iexact R6
    isplitl [R7]; · iexists _; iexact R7
    isplitl [Hs8]; · iexact Hs8
    isplitl [Hs9]; · iexact Hs9
    isplitl [F10]; · iexact F10
    isplitl [F11]; · iexact F11
    isplitl [HO]
    · iexists _; isplitr
      rotate_left
      · iexact HO
      ipureintro; intro p hp
      rcases Finset.mem_insert.mp hp with rfl | hp
      · exact .inr rfl
      exact hW' p hp
    iexact HR

/-! The subcore's scoped storage: the four staging buffers and the four semaphores of this call, and the rest. -/

abbrev c8 : GSem nD τ sig := (thr d L, SemLoc.dma cc0_scratch4.sem)
abbrev c9 : GSem nD τ sig := (thr d L, SemLoc.dma cc0_scratch5.sem)
abbrev c10 : GSem nD τ sig := (thr d L, SemLoc.dma cc0_scratch6.sem)
abbrev c11 : GSem nD τ sig := (thr d L, SemLoc.dma cc0_scratch7.sem)

omit [FloatOps F] in
theorem ownSems0_V :
    (ownSems0 (thr d L) : sProp 𝕄)
      = iprop(semVal (c8 d L) 0 ∗ semVal (c9 d L) 0 ∗ semVal (c10 d L) 0 ∗ semVal (c11 d L) 0
          ∗ bigSep (((((ownCells (thr d L)).erase (c8 d L)).erase (c9 d L)).erase (c10 d L)).erase (c11 d L)) fun g => semVal g 0) := by
  unfold SparseCore.Cfg.ownSems0
  rw [SparseCore.bigSep_erase' ((mem_ownCells (g := c8 d L)).mpr ⟨rfl, by
      show (SemLoc.dma cc0_scratch4.sem : SemLoc sig).isScoped .scVector = true; decide⟩),
    SparseCore.bigSep_erase' (Finset.mem_erase.mpr ⟨fun e => absurd (Prod.mk.inj e).2 (by decide), (mem_ownCells (g := c9 d L)).mpr ⟨rfl, by
      show (SemLoc.dma cc0_scratch5.sem : SemLoc sig).isScoped .scVector = true; decide⟩⟩),
    SparseCore.bigSep_erase' (Finset.mem_erase.mpr ⟨fun e => absurd (Prod.mk.inj e).2 (by decide), Finset.mem_erase.mpr ⟨fun e => absurd (Prod.mk.inj e).2 (by decide),
      (mem_ownCells (g := c10 d L)).mpr ⟨rfl, by show (SemLoc.dma cc0_scratch6.sem : SemLoc sig).isScoped .scVector = true; decide⟩⟩⟩),
    SparseCore.bigSep_erase' (Finset.mem_erase.mpr ⟨fun e => absurd (Prod.mk.inj e).2 (by decide), Finset.mem_erase.mpr ⟨fun e => absurd (Prod.mk.inj e).2 (by decide),
      Finset.mem_erase.mpr ⟨fun e => absurd (Prod.mk.inj e).2 (by decide),
      (mem_ownCells (g := c11 d L)).mpr ⟨rfl, by show (SemLoc.dma cc0_scratch7.sem : SemLoc sig).isScoped .scVector = true; decide⟩⟩⟩⟩)]

abbrev pV (L : grid0.Coords) : Proc τ := Proc.scVector (cV L) (jV L)

omit [FloatOps F] in
theorem ownBufs_V :
    (ownBufs (thr d L) : sProp 𝕄)
      = iprop((∃ f, (thr d L).loc cc0_scratch0 ↦{fullShare} f) ∗ (∃ f, (thr d L).loc cc0_scratch1 ↦{fullShare} f)
          ∗ (∃ f, (thr d L).loc cc0_scratch2 ↦{fullShare} f) ∗ (∃ f, (thr d L).loc cc0_scratch3 ↦{fullShare} f)
          ∗ bigSep (((((ownRefs (τ := τ) (pV L)).erase ((pV L).devRef cc0_scratch0)).erase ((pV L).devRef cc0_scratch1)).erase
              ((pV L).devRef cc0_scratch2)).erase ((pV L).devRef cc0_scratch3))
              fun b => iprop(∃ f, ((d, b) : Loc nD τ sig) ↦{fullShare} f)) := by
  unfold SparseCore.Cfg.ownBufs
  refine (SparseCore.bigSep_erase' (SparseCore.Cfg.mem_ownRefs_of_owner (p := pV L) (b := (pV L).devRef cc0_scratch0) rfl)).trans ?_
  rw [SparseCore.bigSep_erase' (Finset.mem_erase.mpr ⟨fun e => absurd (Proc.devRef_injective _ e) (show (cc0_scratch1 : Ref sig .scVector) ≠ cc0_scratch0 by decide),
      SparseCore.Cfg.mem_ownRefs_of_owner (p := pV L) (b := (pV L).devRef cc0_scratch1) rfl⟩),
    SparseCore.bigSep_erase' (Finset.mem_erase.mpr ⟨fun e => absurd (Proc.devRef_injective _ e) (show (cc0_scratch2 : Ref sig .scVector) ≠ cc0_scratch1 by decide),
      Finset.mem_erase.mpr ⟨fun e => absurd (Proc.devRef_injective _ e) (show (cc0_scratch2 : Ref sig .scVector) ≠ cc0_scratch0 by decide),
      SparseCore.Cfg.mem_ownRefs_of_owner (p := pV L) (b := (pV L).devRef cc0_scratch2) rfl⟩⟩),
    SparseCore.bigSep_erase' (Finset.mem_erase.mpr ⟨fun e => absurd (Proc.devRef_injective _ e) (show (cc0_scratch3 : Ref sig .scVector) ≠ cc0_scratch2 by decide),
      Finset.mem_erase.mpr ⟨fun e => absurd (Proc.devRef_injective _ e) (show (cc0_scratch3 : Ref sig .scVector) ≠ cc0_scratch1 by decide),
      Finset.mem_erase.mpr ⟨fun e => absurd (Proc.devRef_injective _ e) (show (cc0_scratch3 : Ref sig .scVector) ≠ cc0_scratch0 by decide),
      SparseCore.Cfg.mem_ownRefs_of_owner (p := pV L) (b := (pV L).devRef cc0_scratch3) rfl⟩⟩⟩)]

/-- The rest of the subcore's scoped storage, which the task does not touch. -/
def restR : sProp 𝕄 :=
  iprop((bigSep (((((ownRefs (τ := τ) (pV L)).erase ((pV L).devRef cc0_scratch0)).erase ((pV L).devRef cc0_scratch1)).erase
              ((pV L).devRef cc0_scratch2)).erase ((pV L).devRef cc0_scratch3))
              fun b => iprop(∃ f, ((d, b) : Loc nD τ sig) ↦{fullShare} f))
      ∗ bigSep (((((ownCells (thr d L)).erase (c8 d L)).erase (c9 d L)).erase (c10 d L)).erase (c11 d L)) fun g => semVal g 0)

theorem body_pre (hO : ∀ g, O g none = 0) :
    iprop(levAts (K (F := F)).L (K (F := F)).lev ∗ emp ∗ goRes d L fx ∗ ownBufs (thr d L) ∗ ownSems0 (thr d L) ∗ owes (thr d L) O W)
      ⊢ runPre d L O W fx (restR (F := F) d L) := by
  rw [ownSems0_V, ownBufs_V]
  unfold goRes runPre restR
  iintro ⟨#Hlv, -, ⟨HX, HOut⟩, ⟨H4, H5, H6, H7, Hbufs⟩, ⟨Hs8, Hs9, Hs10, Hs11, Hsems⟩, HO⟩
  ihave Hmw := ((K (F := F)).mayWaits_none (thr := thr d L) hO) $$ Hlv
  isplitr; · iexact Hmw
  isplitl [HO]; · iexact HO
  isplitl [HX]; · iexact HX
  isplitl [HOut]; · iexact HOut
  isplitl [H4]; · iexact H4
  isplitl [H5]; · iexact H5
  isplitl [H6]; · iexact H6
  isplitl [H7]; · iexact H7
  isplitl [Hs8]; · iexact Hs8
  isplitl [Hs9]; · iexact Hs9
  isplitl [Hs10]; · iexact Hs10
  isplitl [Hs11]; · iexact Hs11
  isplitl [Hbufs]; · iexact Hbufs
  iexact Hsems

theorem body_post :
    runPost d L O W fx (restR (F := F) d L)
      ⊢ iprop(tdRes d L fx ∗ ownBufs (thr d L) ∗ ownSems0 (thr d L) ∗ ∃ W', ⌜∀ p ∈ W', p ∈ W ∨ p.2 = none⌝ ∗ owes (thr d L) O W') := by
  rw [ownSems0_V, ownBufs_V]
  unfold tdRes runPost restR
  iintro ⟨HX, HOut, H4, H5, H6, H7, Hs8, Hs9, Hs10, Hs11, HW, Hbufs, Hsems⟩
  isplitl [HX HOut]
  · isplitl [HX]; · iexact HX
    iexact HOut
  isplitl [H4 H5 H6 H7 Hbufs]
  · isplitl [H4]; · iexact H4
    isplitl [H5]; · iexact H5
    isplitl [H6]; · iexact H6
    isplitl [H7]; · iexact H7
    iexact Hbufs
  isplitl [Hs8 Hs9 Hs10 Hs11 Hsems]
  · isplitl [Hs8]; · iexact Hs8
    isplitl [Hs9]; · iexact Hs9
    isplitl [Hs10]; · iexact Hs10
    isplitl [Hs11]; · iexact Hs11
    iexact Hsems
  iexact HW

/-- The task in the launch theorem's shape: from what the call hands the tile and the subcore's scoped storage to
    what the tile hands back and the storage again. -/
theorem tile_body (hF : (K (F := F)).Facts) (hO : ∀ g, O g none = 0) :
    iprop(levAts (K (F := F)).L (K (F := F)).lev ∗ emp ∗ goRes d L fx ∗ scopedBufs (thr d L) ∗ scopedSems0 (thr d L) ∗ owes (thr d L) O W)
      ⊢ wp frame (wpE (defs₀ (F := F)) 𝒱₀ (thr d L) none) Set.univ
          (cc0_sc_group L xtW (Memref.isWhole_whole _) oW (Memref.isWhole_whole _) a4 (Memref.isWhole_whole _) a5 (Memref.isWhole_whole _)
            a6 (Memref.isWhole_whole _) a7 (Memref.isWhole_whole _) cc0_scratch4 cc0_scratch5 cc0_scratch6 cc0_scratch7)
          fun _ => iprop(tdRes d L fx ∗ scopedBufs (thr d L) ∗ scopedSems0 (thr d L)
            ∗ ∃ W', ⌜∀ p ∈ W', p ∈ W ∨ p.2 = none⌝ ∗ owes (thr d L) O W') := by
  rw [(K (F := F)).scopedBufs_V hF d (cV L) (jV L), SparseCore.Cfg.scopedSems0_V (Val := Elt F) d (cV L) (jV L)]
  exact (body_pre d L O W fx hO).trans ((tile_run d L O W fx (restR (F := F) d L)).trans (wp_mono frame _ _ fun _ => body_post d L O W fx))

end Tile

end Cert.Proof.TileK0

end
-- ==== Proof.TileBVal.lean ====
/-
  What the staging buffers of one vector subcore hold while it copies a piece of 3200 consecutive elements of row 0 of
  the transposed argument into the flat result, read index by index. No program and no ownership here: only the contents.

  A transfer lands the piece in row 0 of an 8 × 3200 staging array (`InRow`: position (0, t) of that row holds element
  (0, pos + t) of the transposed argument, `pos` the piece's first column). A loop of 200 trips copies that row, 16 lanes
  per trip, into the first 3200 elements of a flat staging array of 25600: trip `j` reads the 1 × 16 window at columns
  [16 j, 16 j + 16) of row 0 and writes it, flattened, at elements [16 j, 16 j + 16). After `j` trips the first 16 j
  elements of the flat array are the first 16 j elements of the row (`Lanes`); a trip extends the prefix by 16
  (`lanes_step`: an element below 16 j is outside the window written and keeps its value, an element of the window reads
  the lane written there, which is the row's element at the same column). A second transfer writes the first 3200
  elements of the flat array to the piece of the result at the same `pos`; so every element of that piece of the result
  holds the element of row 0 of the transposed argument at its own position (`out_written`): the composite of the three
  index maps t ↦ (0, pos + t) ↦ (0, t) ↦ t ↦ pos + t is the identity on positions of the row.
-/
import proofs.«206869_g37898791420194_cont_8to1_b_558_20_alg».proof.Proof.TileB0Defs
import proofs.«206869_g37898791420194_cont_8to1_b_558_20_alg».proof.Proof.Spec
import Idealize.ShloMosaic.Lib.WritesUnit
import Idealize.ShloMosaic.Lib.ValueLayout

noncomputable section

namespace Cert.Proof.TileBVal

open Cert.Proof.TileB0 Cert.Kernel Cert.Kernel.Gen
open Idealize.ShloMosaic Idealize.ShloMosaic.ValueIdx

variable {F : FTy → Type} [FloatOps F]
variable (d : Dev nD) (L : grid0.Coords)
variable (fx : Buf (Elt F) ((Memref.whole main_v0_scv : Memref sig .scVector .hbm S22x1600000 .f32).view.loc (thr d L)))

abbrev rowRect : Rect S8x3200 := Rect.unit (s := S8x3200) ![0, 0] S1x3200.size inb_S8x3200_S1x3200_0_0

/-- row 0 of the staging array is piece n of the argument row -/
def InRow (a : Memref sig .scVector .vmem S8x3200 .f32) (ga : Buf (Elt F) (a.view.loc (thr d L))) (n : ℕ) : Prop :=
  ∀ y : S1x3200.Idx, a.view.read (Elt F) ga (rowRect.emb y) = (inM L n).view.read (Elt F) fx y

theorem inRow_fetch (a : Memref sig .scVector .vmem S8x3200 .f32) (gold : Buf (Elt F) (a.view.loc (thr d L)))
    (w : S1x3200.Idx → Elt F .f32) (n : ℕ) (hw : ∀ y, w y = (inM L n).view.read (Elt F) fx y) :
    InRow d L fx a (a.view.writes (Elt F) gold [⟨rowRect, w⟩]) n :=
  fun y => (View.read_writes_cons_emb a.view gold rowRect w [] y).trans (hw y)

def Lanes (a : Memref sig .scVector .vmem S8x3200 .f32) (b : Memref sig .scVector .vmem S25600 .f32)
    (ga : Buf (Elt F) (a.view.loc (thr d L))) (gb : Buf (Elt F) (b.view.loc (thr d L))) (j : ℕ) : Prop :=
  ∀ (r : ℕ) (hr : r < 3200), r < 16 * j →
    b.view.read (Elt F) gb (ix1 (⟨r, by omega⟩ : Fin 25600)) = a.view.read (Elt F) ga (ix2 (0 : Fin 8) (⟨r, hr⟩ : Fin 3200))

theorem lanes_zero (a : Memref sig .scVector .vmem S8x3200 .f32) (b : Memref sig .scVector .vmem S25600 .f32)
    (ga : Buf (Elt F) (a.view.loc (thr d L))) (gb : Buf (Elt F) (b.view.loc (thr d L))) : Lanes d L a b ga gb 0 := by
  intro r hr h; omega

/-- The 1 × 16 window at column `c` of the staging array, read at lane `t`, is element `(0, c + t)`. -/
theorem idx_window {off : Fin 2 → ℕ} {c : ℕ} (h : off = ![0, c]) (p : ∀ a', off a' + S1x16.size a' ≤ S8x3200.size a')
    (t : Fin 16) (hr : c + t.val < 3200) :
    (Rect.unit (s := S8x3200) off S1x16.size p).toLoadRect.idx (ix2 (0 : Fin 1) t) = ix2 (0 : Fin 8) (⟨c + t.val, hr⟩ : Fin 3200) := by
  subst h
  funext a'; apply Fin.ext
  rw [LoadRect.idx_apply]
  match a' with
  | ⟨0, _⟩ => show 0 + 1 * 0 = 0; omega
  | ⟨1, _⟩ => show c + 1 * t.val = c + t.val; omega

/-- One trip of a lane-copy loop, the offsets given by their closed forms. -/
theorem lanes_step_core (a : Memref sig .scVector .vmem S8x3200 .f32) (b : Memref sig .scVector .vmem S25600 .f32)
    (ga : Buf (Elt F) (a.view.loc (thr d L))) (gb : Buf (Elt F) (b.view.loc (thr d L)))
    (t : ℕ) {off3 : Fin 2 → ℕ} {off4 : Fin 1 → ℕ} (h3 : off3 = ![0, 16 * t]) (h4 : off4 = ![16 * t])
    (p3 : ∀ a', off3 a' + S1x16.size a' ≤ S8x3200.size a') (p4 : ∀ a', off4 a' + S16.size a' ≤ S25600.size a')
    (h : Lanes d L a b ga gb t) :
    Lanes d L a b ga (b.view.writes (Elt F) gb [⟨Rect.unit (s := S25600) off4 S16.size p4,
      shapeCast S16 (a.view.readAt (Elt F) (Rect.unit (s := S8x3200) off3 S1x16.size p3).toLoadRect ga) shapeCasts_S1x16_S16⟩]) (t + 1) := by
  intro r hr hlt
  by_cases hlo : r < 16 * t
  · refine (View.read_writes_cons_unit_of_not_mem b.view gb p4 _ [] _ h4 (0 : Fin 1) (Or.inl ?_)).trans (h r hr hlo)
    show r < 16 * t
    exact hlo
  · have hx : r - 16 * t < 16 := by omega
    refine (View.read_writes_cons_unit_of_mem b.view gb p4 _ [] _ (ix1 (⟨r - 16 * t, hx⟩ : Fin 16)) h4 ?_).trans ?_
    · intro a'
      match a' with
      | ⟨0, _⟩ => show r = 16 * t + (r - 16 * t); omega
    · rw [shapeCast_1a_a_apply, View.readAt_apply, idx_window h3 p3 ⟨r - 16 * t, hx⟩ (by show 16 * t + (r - 16 * t) < 3200; omega)]
      congr 2
      apply Fin.ext
      show 16 * t + (r - 16 * t) = r
      omega

theorem lanes_step (a : Memref sig .scVector .vmem S8x3200 .f32) (b : Memref sig .scVector .vmem S25600 .f32)
    (ga : Buf (Elt F) (a.view.loc (thr d L))) (gb : Buf (Elt F) (b.view.loc (thr d L)))
    (j : Fin k0_t2_loop.trips) (p3 : ∀ a', (k0_off3 j) a' + S1x16.size a' ≤ S8x3200.size a')
    (p4 : ∀ a', (k0_off4 j) a' + S16.size a' ≤ S25600.size a') (h : Lanes d L a b ga gb j.val) :
    Lanes d L a b ga (b.view.writes (Elt F) gb [⟨Rect.unit (s := S25600) (k0_off4 j) S16.size p4,
      k0_pay1 (a.view.readAt (Elt F) (Rect.unit (s := S8x3200) (k0_off3 j) S1x16.size p3).toLoadRect ga)⟩]) (j.val + 1) :=
  lanes_step_core d L a b ga gb j.val (k0_off3_eq j) (k0_off4_eq j) p3 p4 h

theorem lanes_step' (a : Memref sig .scVector .vmem S8x3200 .f32) (b : Memref sig .scVector .vmem S25600 .f32)
    (ga : Buf (Elt F) (a.view.loc (thr d L))) (gb : Buf (Elt F) (b.view.loc (thr d L)))
    (j : Fin k0_t3_loop.trips) (p3 : ∀ a', (k0_off8 j) a' + S1x16.size a' ≤ S8x3200.size a')
    (p4 : ∀ a', (k0_off9 j) a' + S16.size a' ≤ S25600.size a') (h : Lanes d L a b ga gb j.val) :
    Lanes d L a b ga (b.view.writes (Elt F) gb [⟨Rect.unit (s := S25600) (k0_off9 j) S16.size p4,
      k0_pay2 (a.view.readAt (Elt F) (Rect.unit (s := S8x3200) (k0_off8 j) S1x16.size p3).toLoadRect ga)⟩]) (j.val + 1) :=
  lanes_step_core d L a b ga gb j.val (k0_off8_eq j) (k0_off9_eq j) p3 p4 h

/-- Position `y` of the write-out window of the flat staging array is its element `y 0`. -/
theorem stg_emb (y : S3200.Idx) (hy : (y 0).val < 25600) :
    (Rect.unit (s := S25600) ![0] S3200.size inb_S25600_S3200_0).emb y = ix1 (⟨(y 0).val, hy⟩ : Fin 25600) := by
  funext a'; apply Fin.ext
  match a' with
  | ⟨0, _⟩ => show 0 + 1 * (y 0).val = (y 0).val; omega

/-- Position `(0, t)` of row 0 of the staging array is its element `(0, t)`. -/
theorem row_emb (t : Fin 3200) : rowRect.emb (ix2 (0 : Fin 1) t) = ix2 (0 : Fin 8) t := by
  funext a'; apply Fin.ext
  match a' with
  | ⟨0, _⟩ => show 0 + 1 * 0 = 0; omega
  | ⟨1, _⟩ => show 0 + 1 * t.val = t.val; omega

/-- Position `(0, t)` of piece `n` of the argument row is element `(0, pos + t)` of the transposed argument;
    position `y` of piece `n` of the result is element `pos + y 0` of the result. -/
theorem in_emb (n : ℕ) (t : Fin 3200) (h : pos L n + t.val < 1600000) :
    (inM L n).view.emb (ix2 (0 : Fin 1) t) = ix2 (0 : Fin 22) (⟨pos L n + t.val, h⟩ : Fin 1600000) := by
  funext a'; apply Fin.ext
  match a' with
  | ⟨0, _⟩ => show 0 + 1 * 0 = 0; omega
  | ⟨1, _⟩ => show pos L n + 1 * t.val = pos L n + t.val; omega

theorem out_emb (n : ℕ) (y : S3200.Idx) (h : pos L n + (y 0).val < 1600000) :
    (outM L n).view.emb y = ix1 (⟨pos L n + (y 0).val, h⟩ : Fin 1600000) := by
  funext a'; apply Fin.ext
  match a' with
  | ⟨0, _⟩ => show pos L n + 1 * (y 0).val = pos L n + (y 0).val; omega

/-- Both lane-copy loops run 200 trips: 200 · 16 = 3200, the whole row. -/
theorem trips2 : k0_t2_loop.trips = 200 := by decide
theorem trips3 : k0_t3_loop.trips = 200 := by decide

/-- After all its trips a lane-copy loop has copied the whole row. -/
theorem lanes_all (a : Memref sig .scVector .vmem S8x3200 .f32) (b : Memref sig .scVector .vmem S25600 .f32)
    (ga : Buf (Elt F) (a.view.loc (thr d L))) (gb : Buf (Elt F) (b.view.loc (thr d L)))
    (h : Lanes d L a b ga gb k0_t2_loop.trips) : Lanes d L a b ga gb 200 := trips2 ▸ h
theorem lanes_all' (a : Memref sig .scVector .vmem S8x3200 .f32) (b : Memref sig .scVector .vmem S25600 .f32)
    (ga : Buf (Elt F) (a.view.loc (thr d L))) (gb : Buf (Elt F) (b.view.loc (thr d L)))
    (h : Lanes d L a b ga gb k0_t3_loop.trips) : Lanes d L a b ga gb 200 := trips3 ▸ h

/-- The write-out of a piece: the first 3200 elements of the flat staging array, which the 200 lane copies filled from
    row 0 of the staging array, which the fetch filled from piece `n` of row 0 of the transposed argument, land at
    piece `n` of the result, at the same positions of the row. -/
theorem out_written (a : Memref sig .scVector .vmem S8x3200 .f32) (b : Memref sig .scVector .vmem S25600 .f32) (n : ℕ)
    (ga : Buf (Elt F) (a.view.loc (thr d L))) (gb : Buf (Elt F) (b.view.loc (thr d L)))
    (f0 : Buf (Elt F) ((outM L n).view.loc (thr d L))) (w : S3200.Idx → Elt F .f32)
    (hw : ∀ y, w y = (stg b).view.read (Elt F) gb y) (hl : Lanes d L a b ga gb 200) (hr : InRow d L fx a ga n) (hv : valid L n) :
    ∀ i ∈ (outM L n).view.set, ((outM L n).view.writes (Elt F) f0 [⟨Rect.whole _, w⟩]) i = Cert.Spec.row 0 fx i := by
  intro i hi
  obtain ⟨y, -, rfl⟩ := Finset.mem_map.mp hi
  have hy : (y 0).val < 3200 := (y 0).isLt
  have hp : pos L n + (y 0).val < 1600000 := by unfold pos; omega
  have e1 : (outM L n).view.writes (Elt F) f0 [⟨Rect.whole _, w⟩] ((outM L n).view.emb y) = w y := by
    have h := View.read_writes_cons_emb (outM L n).view f0 (Rect.whole _) w [] y
    rw [Rect.emb_whole_apply] at h
    exact (cast_eq _ _).symm.trans ((View.read_apply _ _).symm.trans h)
  have e2 : (stg b).view.read (Elt F) gb y = b.view.read (Elt F) gb (ix1 (⟨(y 0).val, by omega⟩ : Fin 25600)) :=
    congrArg (b.view.read (Elt F) gb) (stg_emb y (by omega))
  have e3 : a.view.read (Elt F) ga (ix2 (0 : Fin 8) (⟨(y 0).val, hy⟩ : Fin 3200))
      = (inM L n).view.read (Elt F) fx (ix2 (0 : Fin 1) (⟨(y 0).val, hy⟩ : Fin 3200)) :=
    (congrArg (a.view.read (Elt F) ga) (row_emb ⟨(y 0).val, hy⟩).symm).trans (hr _)
  have e4 : (inM L n).view.read (Elt F) fx (ix2 (0 : Fin 1) (⟨(y 0).val, hy⟩ : Fin 3200))
      = fx (ix2 (0 : Fin 22) (⟨pos L n + (y 0).val, hp⟩ : Fin 1600000)) :=
    ((View.read_apply _ _).trans (cast_eq _ _)).trans (congrArg fx (in_emb L n ⟨(y 0).val, hy⟩ hp))
  have e5 : Cert.Spec.row 0 fx ((outM L n).view.emb y) = fx (ix2 (0 : Fin 22) (⟨pos L n + (y 0).val, hp⟩ : Fin 1600000)) :=
    (congrArg (Cert.Spec.row 0 fx) (out_emb L n y hp)).trans (Cert.Spec.row_apply 0 fx _)
  exact e1.trans ((hw y).trans (e2.trans ((hl _ hy (by omega)).trans (e3.trans (e4.trans e5.symm)))))

end Cert.Proof.TileBVal

end
-- ==== Proof.TileB0.lean ====
/-
  One vector subcore's task of the first copy kernel, run symbolically: the two fetch slots and two write-out slots
  between trips of the main loop (what each transfer in flight will hand back, and what the staging buffers hold), the
  invariant of the main loop and of the two lane-copy loops, and the task's run — from the tile's pieces of row 0 of
  the transposed argument and of the result to the same pieces with the result holding the row's elements.
-/
import proofs.«206869_g37898791420194_cont_8to1_b_558_20_alg».proof.Proof.TileB0Defs
import proofs.«206869_g37898791420194_cont_8to1_b_558_20_alg».proof.Proof.TileBVal
noncomputable section

namespace Cert.Proof.TileB0

open Cert.Kernel Cert.Kernel.Gen Cert.Proof.TileBVal
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 22) (Elt F) ℕ UU ℕ
local notation "xtW" => (Memref.whole Cert.Kernel.main_v0_scv : Memref Cert.Kernel.sig Kind.scVector Space.hbm Cert.Kernel.S22x1600000 EltTy.f32)
local notation "oW" => (Memref.whole Cert.Kernel.main_v1_scv : Memref Cert.Kernel.sig Kind.scVector Space.hbm Cert.Kernel.S1600000 EltTy.f32)
local notation "a4" => (Memref.whole Cert.Kernel.cc0_scratch0 : Memref Cert.Kernel.sig Kind.scVector Space.vmem Cert.Kernel.S8x3200 EltTy.f32)
local notation "a5" => (Memref.whole Cert.Kernel.cc0_scratch1 : Memref Cert.Kernel.sig Kind.scVector Space.vmem Cert.Kernel.S8x3200 EltTy.f32)
local notation "a6" => (Memref.whole Cert.Kernel.cc0_scratch2 : Memref Cert.Kernel.sig Kind.scVector Space.vmem Cert.Kernel.S25600 EltTy.f32)
local notation "a7" => (Memref.whole Cert.Kernel.cc0_scratch3 : Memref Cert.Kernel.sig Kind.scVector Space.vmem Cert.Kernel.S25600 EltTy.f32)

variable [FloatOps F]

section Tile

variable (d : Dev nD) (L : grid0.Coords)
variable (O : CellTallies nD τ sig (HIx 22)) (W : Waits sig (HIx 22))
variable (fx : Buf (Elt F) ((xtW).view.loc (thr d L)))

/-- Piece `n` of the result at its final contents. -/
abbrev oqPiece (n : ℕ) : sProp 𝕄 := (outM L n).view.loc (thr d L) ↦[(outM L n).view.set]{fullShare} (Cert.Spec.row 0 fx)
theorem oQ_pos {n : ℕ} (v : valid L n) : oQ d L fx n = oqPiece d L fx n := if_pos v
theorem oQ_neg {n : ℕ} (v : ¬ valid L n) : oQ d L fx n = iprop(emp) := if_neg v

/-- A fetch slot, remembering that the staging row it will hand back holds the piece. -/
def inSlotV (a : Memref sig .scVector .vmem S8x3200 .f32) (sm : DmaSem sig) (n : ℕ) : sProp 𝕄 :=
  if valid L n then
    iprop(∃ g, ⌜InRow d L fx a g n⌝ ∗ Transfers.Flight countersEmb (thr d L) (SemLoc.dma sm) (default : HIx 22) NN
      iprop((a.view.loc (thr d L) ↦{fullShare} g) ∗ xtPiece d L fx n))
  else iprop((∃ g, a.view.loc (thr d L) ↦{fullShare} g) ∗ semVal (thr d L, SemLoc.dma sm) 0)

/-- A write-out slot: the piece in flight will come back holding the row's elements. -/
def outSlotV (a : Memref sig .scVector .vmem S25600 .f32) (sm : DmaSem sig) (m : ℕ) : sProp 𝕄 :=
  if 2 ≤ m ∧ valid L (m - 2) then
    iprop(∃ g, Transfers.Flight countersEmb (thr d L) (SemLoc.dma sm) (default : HIx 22) NN
        iprop(oqPiece d L fx (m - 2) ∗ ((stg a).view.loc (thr d L) ↦[(stg a).view.set]{fullShare} g))
      ∗ (a.view.loc (thr d L) ↦[Finset.univ \ (stg a).view.set]{fullShare} g))
  else iprop((∃ g, a.view.loc (thr d L) ↦{fullShare} g) ∗ semVal (thr d L, SemLoc.dma sm) 0)

theorem inSlotV_pos {a : Memref sig .scVector .vmem S8x3200 .f32} {sm : DmaSem sig} {n : ℕ} (v : valid L n) :
    inSlotV d L fx a sm n = iprop(∃ g, ⌜InRow d L fx a g n⌝ ∗ Transfers.Flight countersEmb (thr d L) (SemLoc.dma sm) (default : HIx 22) NN
      iprop((a.view.loc (thr d L) ↦{fullShare} g) ∗ xtPiece d L fx n)) := by unfold inSlotV; rw [if_pos v]
theorem inSlotV_neg {a : Memref sig .scVector .vmem S8x3200 .f32} {sm : DmaSem sig} {n : ℕ} (v : ¬ valid L n) :
    inSlotV d L fx a sm n = iprop((∃ g, a.view.loc (thr d L) ↦{fullShare} g) ∗ semVal (thr d L, SemLoc.dma sm) 0) := by
  unfold inSlotV; rw [if_neg v]
theorem outSlotV_pos {a : Memref sig .scVector .vmem S25600 .f32} {sm : DmaSem sig} {m : ℕ} (h : 2 ≤ m ∧ valid L (m - 2)) :
    outSlotV d L fx a sm m = iprop(∃ g, Transfers.Flight countersEmb (thr d L) (SemLoc.dma sm) (default : HIx 22) NN
        iprop(oqPiece d L fx (m - 2) ∗ ((stg a).view.loc (thr d L) ↦[(stg a).view.set]{fullShare} g))
      ∗ (a.view.loc (thr d L) ↦[Finset.univ \ (stg a).view.set]{fullShare} g)) := by unfold outSlotV; rw [if_pos h]
theorem outSlotV_neg {a : Memref sig .scVector .vmem S25600 .f32} {sm : DmaSem sig} {m : ℕ} (h : ¬ (2 ≤ m ∧ valid L (m - 2))) :
    outSlotV d L fx a sm m = iprop((∃ g, a.view.loc (thr d L) ↦{fullShare} g) ∗ semVal (thr d L, SemLoc.dma sm) 0) := by
  unfold outSlotV; rw [if_neg h]

/-- A fetch just issued: the staging row will hold what the transfer reads, which is the piece. -/
theorem fl_inV {off : Fin 2 → ℕ} {n : ℕ} (h : off = ![0, pos L n]) (p : ∀ a, off a + S1x3200.size a ≤ S22x1600000.size a) (v : valid L n)
    (a : Memref sig .scVector .vmem S8x3200 .f32) (sm : DmaSem sig) :
    (iprop(∃ (gold : Buf (Elt F) (a.view.loc (thr d L))) (w : S1x3200.Idx → Elt F .f32),
        ⌜∀ y, w y = ((xtW).slice (Rect.unit (s := S22x1600000) off S1x3200.size p) (fun _ => rfl)).view.read (Elt F) fx y⌝
        ∗ Transfers.Flight countersEmb (thr d L) (SemLoc.dma sm) (default : HIx 22) NN
          iprop((a.view.loc (thr d L) ↦{fullShare} a.view.writes (Elt F) gold [⟨rowRect, w⟩])
            ∗ (((xtW).slice (Rect.unit (s := S22x1600000) off S1x3200.size p) (fun _ => rfl)).view.loc (thr d L)
                ↦[((xtW).slice (Rect.unit (s := S22x1600000) off S1x3200.size p) (fun _ => rfl)).view.set]{fullShare} fx))) : sProp 𝕄)
      ⊢ inSlotV d L fx a sm n := by
  subst h
  rw [inSlotV_pos d L fx v]
  iintro ⟨%gold, %w, %hw, H⟩
  iexists _
  isplitr
  · ipureintro; exact inRow_fetch d L fx a gold w n hw
  · iexact H

set_option maxHeartbeats 4000000 in
/-- A write-out just issued from a flat staging buffer whose first 3200 elements are the staging row, itself piece
    `n` of the argument row: the piece of the result will hold the row's elements. -/
theorem fl_outV {off : Fin 1 → ℕ} {n : ℕ} (h : off = ![pos L n]) (p : ∀ a, off a + S3200.size a ≤ S1600000.size a) (v : valid L n)
    (ar : Memref sig .scVector .vmem S8x3200 .f32) (a : Memref sig .scVector .vmem S25600 .f32) (sm : DmaSem sig)
    (f0 : Buf (Elt F) ((oW).view.loc (thr d L))) (ga : Buf (Elt F) (ar.view.loc (thr d L))) (gb : Buf (Elt F) (a.view.loc (thr d L)))
    (hl : Lanes d L ar a ga gb 200) (hr : InRow d L fx ar ga n) :
    (iprop(∃ (w : S3200.Idx → Elt F .f32),
        ⌜∀ y, w y = (stg a).view.read (Elt F) gb y⌝
        ∗ Transfers.Flight countersEmb (thr d L) (SemLoc.dma sm) (default : HIx 22) NN
          iprop((((oW).slice (Rect.unit (s := S1600000) off S3200.size p) (fun _ => rfl)).view.loc (thr d L)
                ↦[((oW).slice (Rect.unit (s := S1600000) off S3200.size p) (fun _ => rfl)).view.set]{fullShare}
                  (((oW).slice (Rect.unit (s := S1600000) off S3200.size p) (fun _ => rfl)).view.writes (Elt F) f0 [⟨Rect.whole _, w⟩]))
            ∗ ((stg a).view.loc (thr d L) ↦[(stg a).view.set]{fullShare} gb))
        ∗ (a.view.loc (thr d L) ↦[Finset.univ \ (stg a).view.set]{fullShare} gb)) : sProp 𝕄)
      ⊢ outSlotV d L fx a sm (n + 2) := by
  subst h
  rw [outSlotV_pos d L fx (m := n + 2) ⟨by omega, by simpa using v⟩]
  iintro ⟨%w, %hw, H, R⟩
  have hD : (iprop(((outM L n).view.loc (thr d L) ↦[(outM L n).view.set]{fullShare} ((outM L n).view.writes (Elt F) f0 [⟨Rect.whole _, w⟩]))
          ∗ ((stg a).view.loc (thr d L) ↦[(stg a).view.set]{fullShare} gb)) : sProp 𝕄)
      ⊢ iprop(oqPiece d L fx (n + 2 - 2) ∗ ((stg a).view.loc (thr d L) ↦[(stg a).view.set]{fullShare} gb)) := by
    rw [Nat.add_sub_cancel]
    have e : (((outM L n).view.loc (thr d L) ↦[(outM L n).view.set]{fullShare} ((outM L n).view.writes (Elt F) f0 [⟨Rect.whole _, w⟩])) : sProp 𝕄)
        = oqPiece d L fx n := pointsTo_congr (out_written d L fx ar a n ga gb f0 w hw hl hr v)
    iintro ⟨H1, H2⟩
    isplitl [H1]
    · iapply (Entails.of_eq e); iexact H1
    · iexact H2
  iexists gb
  isplitl [H]
  · iapply (Transfers.Flight_mono countersEmb (thr d L) hD); iexact H
  · iexact R

/-- The result pieces outside the slots before trip `t`: those already written hold the row, the others some contents. -/
def oMix (t n : ℕ) : sProp 𝕄 := if n + 2 < 2 * t then oQ d L fx n else oP (F := F) d L n
theorem oMix_lt {t n : ℕ} (h : n + 2 < 2 * t) : oMix d L fx t n = oQ d L fx n := if_pos h
theorem oMix_ge {t n : ℕ} (h : ¬ n + 2 < 2 * t) : oMix d L fx t n = oP (F := F) d L n := if_neg h
theorem oMix_core (k : ℕ) : bigSep (oCore k) (oMix d L fx k) = bigSep (oCore k) (oMix d L fx (k + 1)) :=
  bigSep_congr fun n hn => by
    have hn' : n + 2 ≠ 2 * k ∧ n + 2 ≠ 2 * k + 1 ∧ n ≠ 2 * k ∧ n ≠ 2 * k + 1 := by
      simp only [oCore, Finset.mem_filter, Finset.mem_range] at hn; exact hn.2
    by_cases h : n + 2 < 2 * k
    · rw [oMix_lt d L fx h, oMix_lt d L fx (by omega)]
    · rw [oMix_ge d L fx h, oMix_ge d L fx (by omega)]
theorem oMix_zero : bigSep (oSet 0) (oMix d L fx 0) = bigSep (Finset.range 18) (oP (F := F) d L) := by
  rw [oSet_zero]; exact bigSep_congr fun n _ => oMix_ge d L fx (by omega)
theorem oMix_end : bigSep (oSet 8) (oMix d L fx 8) = bigSep (oSet 8) (oQ d L fx) :=
  bigSep_congr fun n hn => by
    have hn' : n < 18 ∧ n + 2 ≠ 16 ∧ n + 2 ≠ 17 := by simpa only [oSet, Finset.mem_filter, Finset.mem_range] using hn
    by_cases h : n + 2 < 2 * 8
    · exact oMix_lt d L fx h
    · rw [oMix_ge d L fx h, oP_neg (F := F) d L (by unfold valid; omega), oQ_neg d L fx (by unfold valid; omega)]

/-- The lane-copy loops: before trip `j` the first 16·j elements of the flat staging buffer are the staging row's. -/
def laneV0 (g4 : Buf (Elt F) ((a4).view.loc (thr d L))) (j : ℕ) (_ : PUnit) : sProp 𝕄 :=
  iprop(((a4).view.loc (thr d L) ↦{fullShare} g4) ∗ (∃ g, ((a6).view.loc (thr d L) ↦{fullShare} g) ∗ ⌜Lanes d L a4 a6 g4 g j⌝))
def laneV1 (g5 : Buf (Elt F) ((a5).view.loc (thr d L))) (j : ℕ) (_ : PUnit) : sProp 𝕄 :=
  iprop(((a5).view.loc (thr d L) ↦{fullShare} g5) ∗ (∃ g, ((a7).view.loc (thr d L) ↦{fullShare} g) ∗ ⌜Lanes d L a5 a7 g5 g j⌝))

def invV (t : ℕ) (_ : PUnit) : sProp 𝕄 :=
  iprop(Transfers.MayWaits (thr d L) (none : HIx 22) O
    ∗ (∃ W', ⌜∀ p ∈ W', p ∈ W ∨ p.2 = none⌝ ∗ owes (thr d L) O W')
    ∗ bigSep (xSet t) (xP d L fx) ∗ bigSep (oSet t) (oMix d L fx t)
    ∗ inSlotV d L fx a4 cc0_scratch4.sem (2 * t) ∗ outSlotV d L fx a6 cc0_scratch6.sem (2 * t)
    ∗ inSlotV d L fx a5 cc0_scratch5.sem (2 * t + 1) ∗ outSlotV d L fx a7 cc0_scratch7.sem (2 * t + 1))

/-- After the last trip nothing of the argument row is in a slot: the tile holds all its pieces. -/
theorem xRange_end : bigSep (xSet 8) (xP d L fx) ⊢ bigSep (Finset.range 18) (xP d L fx) := by
  rw [two_out (s := Finset.range 18) (a := 16) (b := 17) (by decide) (by decide) (by decide),
    show ((Finset.range 18).erase 16).erase 17 = xSet 8 by decide]
  iintro H
  isplitr; · iapply (Entails.of_eq (xP_neg d L fx (n := 16) (by unfold valid; omega)).symm); iempintro
  isplitr; · iapply (Entails.of_eq (xP_neg d L fx (n := 17) (by unfold valid; omega)).symm); iempintro
  iexact H
omit [FloatOps F] in
theorem oRange_end (Φ : ℕ → sProp 𝕄) : bigSep (Finset.range 18) Φ = iprop(Φ 14 ∗ Φ 15 ∗ bigSep (oSet 8) Φ) := by
  rw [two_out (s := Finset.range 18) (a := 14) (b := 15) (by decide) (by decide) (by decide),
    show ((Finset.range 18).erase 14).erase 15 = oSet 8 by decide]

/-- What the run starts from and ends with, beside an untouched rest `R`. -/
def runPre (R : sProp 𝕄) : sProp 𝕄 :=
    iprop(Transfers.MayWaits (thr d L) (none : HIx 22) O ∗ owes (thr d L) O W
        ∗ bigSep (Finset.range 18) (xP d L fx) ∗ bigSep (Finset.range 18) (oP (F := F) d L)
        ∗ (∃ g, (a4).view.loc (thr d L) ↦{fullShare} g) ∗ (∃ g, (a5).view.loc (thr d L) ↦{fullShare} g)
        ∗ (∃ g, (a6).view.loc (thr d L) ↦{fullShare} g) ∗ (∃ g, (a7).view.loc (thr d L) ↦{fullShare} g)
        ∗ semVal (thr d L, SemLoc.dma cc0_scratch4.sem) 0 ∗ semVal (thr d L, SemLoc.dma cc0_scratch5.sem) 0
        ∗ semVal (thr d L, SemLoc.dma cc0_scratch6.sem) 0 ∗ semVal (thr d L, SemLoc.dma cc0_scratch7.sem) 0 ∗ R)
def runPost (R : sProp 𝕄) : sProp 𝕄 :=
    iprop(bigSep (Finset.range 18) (xP d L fx) ∗ bigSep (Finset.range 18) (oQ d L fx)
            ∗ (∃ g, (a4).view.loc (thr d L) ↦{fullShare} g) ∗ (∃ g, (a5).view.loc (thr d L) ↦{fullShare} g)
            ∗ (∃ g, (a6).view.loc (thr d L) ↦{fullShare} g) ∗ (∃ g, (a7).view.loc (thr d L) ↦{fullShare} g)
            ∗ semVal (thr d L, SemLoc.dma cc0_scratch4.sem) 0 ∗ semVal (thr d L, SemLoc.dma cc0_scratch5.sem) 0
            ∗ semVal (thr d L, SemLoc.dma cc0_scratch6.sem) 0 ∗ semVal (thr d L, SemLoc.dma cc0_scratch7.sem) 0
            ∗ (∃ W', ⌜∀ p ∈ W', p ∈ W ∨ p.2 = none⌝ ∗ owes (thr d L) O W') ∗ R)

set_option maxHeartbeats 16000000 in
/-- The task's run: from its pieces of the argument row and of the result, the four staging buffers and the four
    semaphores at zero, to the same with every piece of the result holding the row's elements. -/
theorem tile_run (R : sProp 𝕄) :
    runPre d L O W fx R
      ⊢ wp frame (wpE (defs₀ (F := F)) 𝒱₀ (thr d L) none) Set.univ
          (cc0_sc_group L xtW (Memref.isWhole_whole _) oW (Memref.isWhole_whole _) a4 (Memref.isWhole_whole _) a5 (Memref.isWhole_whole _)
            a6 (Memref.isWhole_whole _) a7 (Memref.isWhole_whole _) cc0_scratch4 cc0_scratch5 cc0_scratch6 cc0_scratch7)
          fun _ => runPost d L O W fx R := by
  unfold runPre runPost
  have v0 : valid L 0 := Or.inl (by omega)
  have v1 : valid L 1 := Or.inl (by omega)
  have k0_h7 : k0_cond7 L = 1#1 := cond7_iff L
  iintro ⟨#Hmw, HO, HX, HOut, ⟨%g4, H4⟩, ⟨%g5, H5⟩, ⟨%g6, H6⟩, ⟨%g7, H7⟩, Hs8, Hs9, Hs10, Hs11, HR⟩
  ihave HX := (Entails.of_eq (xRange_split d L fx v0 v1)) $$ HX
  icases HX with ⟨X0, X1, HX⟩
  ihave X0 := (Entails.of_eq (in_congr d L (off_in0 L v0).symm (in_inb L _) (k0_off1_inb L 0) fx)) $$ X0
  ihave X1 := (Entails.of_eq (in_congr d L (off_in1 L v1).symm (in_inb L _) (k0_off1_inb L 1) fx)) $$ X1
  sl_unfold [cc0_sc_group]
  sl_exec
  ihave S8 := (fl_inV d L fx (off_in0 L v0) (k0_off1_inb L 0) v0 a4 cc0_scratch4.sem) $$ [Hs8]
  · iexists _, _
    isplitr
    rotate_left
    · iexact Hs8
    ipureintro; intro y; rfl
  ihave S9 := (fl_inV d L fx (off_in1 L v1) (k0_off1_inb L 1) v1 a5 cc0_scratch5.sem) $$ [Hs9]
  · iexists _, _
    isplitr
    rotate_left
    · iexact Hs9
    ipureintro; intro y; rfl
  sl_for (invV d L O W fx) $$ [HO HX HOut S8 S9 H6 H7 Hs10 Hs11]
  case region =>
    intro (k : Fin k0_t1_loop.trips) acc
    have hk : k.val < 8 := Nat.lt_of_lt_of_eq k.isLt trips1
    unfold invV
    iintro ⟨#Hmw, ⟨%W', %hW', HO⟩, HX, HOut, S8, S10, S9, S11⟩
    by_cases hk1 : 1 ≤ k.val
    · by_cases v3 : valid L (2 * k.val + 3)
      · -- the generic trip: both drains, both pieces worked, both next fetches issued
        have hk6 : k.val ≤ 6 := by unfold valid at v3; omega
        have k0_h1 : k0_cond1 k = 1#1 := (cond1_iff k).mpr (by omega)
        have k0_h2 : k0_cond2 L k = 1#1 := cond2_iff L k
        have k0_h3 : k0_cond3 L k = 1#1 := (cond3_iff L k).mpr (by omega)
        have k0_h4 : k0_cond4 k = 1#1 := (cond4_iff k).mpr (by omega)
        have k0_h5 : k0_cond5 L k = 1#1 := (cond5_iff L k).mpr (by first | (unfold valid big at *; omega) | (unfold big at *; omega) | omega)
        have k0_h6 : k0_cond6 L k = 1#1 := (cond6_iff L k).mpr (by first | (unfold valid big at *; omega) | (unfold big at *; omega) | omega)
        have v0 : valid L (2 * k.val) := by unfold valid big at *; omega
        have v1 : valid L (2 * k.val + 1) := by unfold valid big at *; omega
        have v2 : valid L (2 * k.val + 2) := by unfold valid big at *; omega
        have v3' : valid L (2 * k.val + 3) := by unfold valid big at *; omega
        have hm0 : 2 ≤ 2 * k.val ∧ valid L (2 * k.val - 2) := ⟨by omega, by unfold valid big at *; omega⟩
        have hm1 : 2 ≤ 2 * k.val + 1 ∧ valid L (2 * k.val + 1 - 2) := ⟨by omega, by unfold valid big at *; omega⟩
        ihave S8 := (Entails.of_eq (inSlotV_pos d L fx v0)) $$ S8
        icases S8 with ⟨%g4, %hin4, F8⟩
        ihave S9 := (Entails.of_eq (inSlotV_pos d L fx v1)) $$ S9
        icases S9 with ⟨%g5, %hin5, F9⟩
        ihave S10 := (Entails.of_eq (outSlotV_pos d L fx hm0)) $$ S10
        icases S10 with ⟨%g6, F10, R6⟩
        ihave S11 := (Entails.of_eq (outSlotV_pos d L fx hm1)) $$ S11
        icases S11 with ⟨%g7, F11, R7⟩
        ihave HX := (Entails.of_eq (xSet_out (xP d L fx) k.val hk)) $$ HX
        icases HX with ⟨X2, X3, HX⟩
        ihave X2 := (Entails.of_eq (xP_pos d L fx v2)) $$ X2
        ihave X2 := (Entails.of_eq (in_congr d L (off_6 L k v2).symm (in_inb L _) (k0_off6_inb L k k0_h3) fx)) $$ X2
        ihave X3 := (Entails.of_eq (xP_pos d L fx v3')) $$ X3
        ihave X3 := (Entails.of_eq (in_congr d L (off_11 L k v3').symm (in_inb L _) (k0_off11_inb L k k0_h6) fx)) $$ X3
        ihave HOut := (Entails.of_eq (oSet_out (oMix d L fx k.val) k.val hk)) $$ HOut
        icases HOut with ⟨Y0, Y1, HOut⟩
        ihave Y0 := (Entails.of_eq ((oMix_ge d L fx (t := k.val) (n := 2 * k.val) (by omega)).trans (oP_pos (F := F) d L v0))) $$ Y0
        icases Y0 with ⟨%f0, Y0⟩
        ihave Y0 := (Entails.of_eq (out_congr d L (off_5 L k v0).symm (out_inb L _) (k0_off5_inb L k k0_h2) f0)) $$ Y0
        ihave Y1 := (Entails.of_eq ((oMix_ge d L fx (t := k.val) (n := 2 * k.val + 1) (by omega)).trans (oP_pos (F := F) d L v1))) $$ Y1
        icases Y1 with ⟨%f1, Y1⟩
        ihave Y1 := (Entails.of_eq (out_congr d L (off_10 L k v1).symm (out_inb L _) (k0_off10_inb L k k0_h5) f1)) $$ Y1
        sl_exec
        sl_for (laneV0 d L g4) $$ [F8_dst R6]
        case region =>
          intro (j : Fin k0_t2_loop.trips) _
          unfold laneV0
          iintro ⟨HA, %g, HB, %hl⟩
          sl_exec
          sl_step
          isplitl [HA]; · iexact HA
          iexists _; isplitl [HB]; · iexact HB
          ipureintro; exact lanes_step d L a4 a6 g4 g j _ _ hl
        · unfold laneV0
          isplitl [F8_dst]; · iexact F8_dst
          iexists _; isplitl [R6]; · iexact R6
          ipureintro; exact lanes_zero d L a4 a6 g4 _
        iintro %_ HI
        unfold laneV0
        icases HI with ⟨H4, %g6', H6, %hl6⟩
        have hl6 : Lanes d L a4 a6 g4 g6' 200 := Eq.mp (congrArg (Lanes d L a4 a6 g4 g6') trips2) hl6
        sl_exec
        sl_for (laneV1 d L g5) $$ [F9_dst R7]
        case region =>
          intro (j : Fin k0_t3_loop.trips) _
          unfold laneV1
          iintro ⟨HA, %g, HB, %hl⟩
          sl_exec
          sl_step
          isplitl [HA]; · iexact HA
          iexists _; isplitl [HB]; · iexact HB
          ipureintro; exact lanes_step' d L a5 a7 g5 g j _ _ hl
        · unfold laneV1
          isplitl [F9_dst]; · iexact F9_dst
          iexists _; isplitl [R7]; · iexact R7
          ipureintro; exact lanes_zero d L a5 a7 g5 _
        iintro %_ HI
        unfold laneV1
        icases HI with ⟨H5, %g7', H7, %hl7⟩
        have hl7 : Lanes d L a5 a7 g5 g7' 200 := Eq.mp (congrArg (Lanes d L a5 a7 g5 g7') trips3) hl7
        sl_exec
        sl_step
        isplitr; · iexact Hmw
        isplitl [HO]
        · iexists _; isplitr
          rotate_left
          · iexact HO
          ipureintro; intro p hp
          rcases Finset.mem_insert.mp hp with rfl | hp
          · exact .inr rfl
          rcases Finset.mem_insert.mp hp with rfl | hp
          · exact .inr rfl
          rcases Finset.mem_insert.mp hp with rfl | hp
          · exact .inr rfl
          rcases Finset.mem_insert.mp hp with rfl | hp
          · exact .inr rfl
          exact hW' p hp
        isplitl [HX F8_src F9_src]
        · iapply (Entails.of_eq (xSet_in (xP d L fx) k.val hk).symm)
          isplitl [F8_src]; · iapply (Entails.of_eq (xP_pos d L fx v0).symm); iexact F8_src
          isplitl [F9_src]; · iapply (Entails.of_eq (xP_pos d L fx v1).symm); iexact F9_src
          iexact HX
        isplitl [HOut F10_dst F11_dst]
        · iapply (Entails.of_eq (oSet_in (oMix d L fx (k.val + 1)) k.val hk (by omega)).symm)
          isplitl [F10_dst]; · iapply (Entails.of_eq ((oMix_lt d L fx (t := k.val + 1) (n := 2 * k.val - 2) (by omega)).trans (oQ_pos d L fx hm0.2)).symm); iexact F10_dst
          isplitl [F11_dst]
          · iapply (Entails.of_eq ((oMix_lt d L fx (t := k.val + 1) (n := 2 * k.val - 1) (by omega)).trans (oQ_pos d L fx (n := 2 * k.val - 1) (by have := hm1.2; rwa [show 2 * k.val + 1 - 2 = 2 * k.val - 1 by omega] at this))).symm)
            iapply (Entails.of_eq (congrArg (oqPiece d L fx) (show 2 * k.val + 1 - 2 = 2 * k.val - 1 by omega))); iexact F11_dst
          iapply (Entails.of_eq (oMix_core d L fx k.val)); iexact HOut
        isplitl [F8]
        · iapply (Entails.of_eq (congrArg (inSlotV d L fx a4 cc0_scratch4.sem) (show 2 * k.val + 2 = 2 * (k.val + 1) by ring)))
          iapply (fl_inV d L fx (off_6 L k v2) (k0_off6_inb L k k0_h3) v2 a4 cc0_scratch4.sem); iexists _, _
          isplitr
          rotate_left
          · iexact F8
          ipureintro; intro y; rfl
        isplitl [F10 H6]
        · iapply (Entails.of_eq (congrArg (outSlotV d L fx a6 cc0_scratch6.sem) (show 2 * k.val + 2 = 2 * (k.val + 1) by ring)))
          iapply (fl_outV d L fx (off_5 L k v0) (k0_off5_inb L k k0_h2) v0 a4 a6 cc0_scratch6.sem f0 g4 g6' hl6 hin4); iexists _
          isplitr
          rotate_left
          · isplitl [F10]; · iexact F10
            iexact H6
          ipureintro; intro y; rfl
        isplitl [F9]
        · iapply (Entails.of_eq (congrArg (inSlotV d L fx a5 cc0_scratch5.sem) (show 2 * k.val + 3 = 2 * (k.val + 1) + 1 by ring)))
          iapply (fl_inV d L fx (off_11 L k v3') (k0_off11_inb L k k0_h6) v3' a5 cc0_scratch5.sem); iexists _, _
          isplitr
          rotate_left
          · iexact F9
          ipureintro; intro y; rfl
        · iapply (Entails.of_eq (congrArg (outSlotV d L fx a7 cc0_scratch7.sem) (show 2 * k.val + 1 + 2 = 2 * (k.val + 1) + 1 by ring)))
          iapply (fl_outV d L fx (off_10 L k v1) (k0_off10_inb L k k0_h5) v1 a5 a7 cc0_scratch7.sem f1 g5 g7' hl7 hin5); iexists _
          isplitr
          rotate_left
          · isplitl [F11]; · iexact F11
            iexact H7
          ipureintro; intro y; rfl
      · by_cases h6 : k.val = 6
        · have hb : ¬ big L := fun hb => v3 (Or.inr ⟨by omega, hb⟩)
          -- trip 6 of a tile with fifteen pieces: no sixteenth piece to fetch
          have k0_h1 : k0_cond1 k = 1#1 := (cond1_iff k).mpr (by omega)
          have k0_h2 : k0_cond2 L k = 1#1 := cond2_iff L k
          have k0_h3 : k0_cond3 L k = 1#1 := (cond3_iff L k).mpr (by omega)
          have k0_h4 : k0_cond4 k = 1#1 := (cond4_iff k).mpr (by omega)
          have k0_h5 : k0_cond5 L k = 1#1 := (cond5_iff L k).mpr (by first | (unfold valid big at *; omega) | (unfold big at *; omega) | omega)
          have k0_h6 : ¬ k0_cond6 L k = 1#1 := fun h => absurd ((cond6_iff L k).mp h) (by first | (unfold valid big at *; omega) | (unfold big at *; omega) | omega)
          have v0 : valid L (2 * k.val) := by unfold valid big at *; omega
          have v1 : valid L (2 * k.val + 1) := by unfold valid big at *; omega
          have v2 : valid L (2 * k.val + 2) := by unfold valid big at *; omega
          have v3' : ¬ valid L (2 * k.val + 3) := by unfold valid big at *; omega
          have hm0 : 2 ≤ 2 * k.val ∧ valid L (2 * k.val - 2) := ⟨by omega, by unfold valid big at *; omega⟩
          have hm1 : 2 ≤ 2 * k.val + 1 ∧ valid L (2 * k.val + 1 - 2) := ⟨by omega, by unfold valid big at *; omega⟩
          ihave S8 := (Entails.of_eq (inSlotV_pos d L fx v0)) $$ S8
          icases S8 with ⟨%g4, %hin4, F8⟩
          ihave S9 := (Entails.of_eq (inSlotV_pos d L fx v1)) $$ S9
          icases S9 with ⟨%g5, %hin5, F9⟩
          ihave S10 := (Entails.of_eq (outSlotV_pos d L fx hm0)) $$ S10
          icases S10 with ⟨%g6, F10, R6⟩
          ihave S11 := (Entails.of_eq (outSlotV_pos d L fx hm1)) $$ S11
          icases S11 with ⟨%g7, F11, R7⟩
          ihave HX := (Entails.of_eq (xSet_out (xP d L fx) k.val hk)) $$ HX
          icases HX with ⟨X2, -, HX⟩
          ihave X2 := (Entails.of_eq (xP_pos d L fx v2)) $$ X2
          ihave X2 := (Entails.of_eq (in_congr d L (off_6 L k v2).symm (in_inb L _) (k0_off6_inb L k k0_h3) fx)) $$ X2
          ihave HOut := (Entails.of_eq (oSet_out (oMix d L fx k.val) k.val hk)) $$ HOut
          icases HOut with ⟨Y0, Y1, HOut⟩
          ihave Y0 := (Entails.of_eq ((oMix_ge d L fx (t := k.val) (n := 2 * k.val) (by omega)).trans (oP_pos (F := F) d L v0))) $$ Y0
          icases Y0 with ⟨%f0, Y0⟩
          ihave Y0 := (Entails.of_eq (out_congr d L (off_5 L k v0).symm (out_inb L _) (k0_off5_inb L k k0_h2) f0)) $$ Y0
          ihave Y1 := (Entails.of_eq ((oMix_ge d L fx (t := k.val) (n := 2 * k.val + 1) (by omega)).trans (oP_pos (F := F) d L v1))) $$ Y1
          icases Y1 with ⟨%f1, Y1⟩
          ihave Y1 := (Entails.of_eq (out_congr d L (off_10 L k v1).symm (out_inb L _) (k0_off10_inb L k k0_h5) f1)) $$ Y1
          sl_exec
          sl_for (laneV0 d L g4) $$ [F8_dst R6]
          case region =>
            intro (j : Fin k0_t2_loop.trips) _
            unfold laneV0
            iintro ⟨HA, %g, HB, %hl⟩
            sl_exec
            sl_step
            isplitl [HA]; · iexact HA
            iexists _; isplitl [HB]; · iexact HB
            ipureintro; exact lanes_step d L a4 a6 g4 g j _ _ hl
          · unfold laneV0
            isplitl [F8_dst]; · iexact F8_dst
            iexists _; isplitl [R6]; · iexact R6
            ipureintro; exact lanes_zero d L a4 a6 g4 _
          iintro %_ HI
          unfold laneV0
          icases HI with ⟨H4, %g6', H6, %hl6⟩
          have hl6 : Lanes d L a4 a6 g4 g6' 200 := Eq.mp (congrArg (Lanes d L a4 a6 g4 g6') trips2) hl6
          sl_exec
          sl_for (laneV1 d L g5) $$ [F9_dst R7]
          case region =>
            intro (j : Fin k0_t3_loop.trips) _
            unfold laneV1
            iintro ⟨HA, %g, HB, %hl⟩
            sl_exec
            sl_step
            isplitl [HA]; · iexact HA
            iexists _; isplitl [HB]; · iexact HB
            ipureintro; exact lanes_step' d L a5 a7 g5 g j _ _ hl
          · unfold laneV1
            isplitl [F9_dst]; · iexact F9_dst
            iexists _; isplitl [R7]; · iexact R7
            ipureintro; exact lanes_zero d L a5 a7 g5 _
          iintro %_ HI
          unfold laneV1
          icases HI with ⟨H5, %g7', H7, %hl7⟩
          have hl7 : Lanes d L a5 a7 g5 g7' 200 := Eq.mp (congrArg (Lanes d L a5 a7 g5 g7') trips3) hl7
          sl_exec
          sl_step
          isplitr; · iexact Hmw
          isplitl [HO]
          · iexists _; isplitr
            rotate_left
            · iexact HO
            ipureintro; intro p hp
            rcases Finset.mem_insert.mp hp with rfl | hp
            · exact .inr rfl
            rcases Finset.mem_insert.mp hp with rfl | hp
            · exact .inr rfl
            rcases Finset.mem_insert.mp hp with rfl | hp
            · exact .inr rfl
            rcases Finset.mem_insert.mp hp with rfl | hp
            · exact .inr rfl
            exact hW' p hp
          isplitl [HX F8_src F9_src]
          · iapply (Entails.of_eq (xSet_in (xP d L fx) k.val hk).symm)
            isplitl [F8_src]; · iapply (Entails.of_eq (xP_pos d L fx v0).symm); iexact F8_src
            isplitl [F9_src]; · iapply (Entails.of_eq (xP_pos d L fx v1).symm); iexact F9_src
            iexact HX
          isplitl [HOut F10_dst F11_dst]
          · iapply (Entails.of_eq (oSet_in (oMix d L fx (k.val + 1)) k.val hk (by omega)).symm)
            isplitl [F10_dst]; · iapply (Entails.of_eq ((oMix_lt d L fx (t := k.val + 1) (n := 2 * k.val - 2) (by omega)).trans (oQ_pos d L fx hm0.2)).symm); iexact F10_dst
            isplitl [F11_dst]
            · iapply (Entails.of_eq ((oMix_lt d L fx (t := k.val + 1) (n := 2 * k.val - 1) (by omega)).trans (oQ_pos d L fx (n := 2 * k.val - 1) (by have := hm1.2; rwa [show 2 * k.val + 1 - 2 = 2 * k.val - 1 by omega] at this))).symm)
              iapply (Entails.of_eq (congrArg (oqPiece d L fx) (show 2 * k.val + 1 - 2 = 2 * k.val - 1 by omega))); iexact F11_dst
            iapply (Entails.of_eq (oMix_core d L fx k.val)); iexact HOut
          isplitl [F8]
          · iapply (Entails.of_eq (congrArg (inSlotV d L fx a4 cc0_scratch4.sem) (show 2 * k.val + 2 = 2 * (k.val + 1) by ring)))
            iapply (fl_inV d L fx (off_6 L k v2) (k0_off6_inb L k k0_h3) v2 a4 cc0_scratch4.sem); iexists _, _
            isplitr
            rotate_left
            · iexact F8
            ipureintro; intro y; rfl
          isplitl [F10 H6]
          · iapply (Entails.of_eq (congrArg (outSlotV d L fx a6 cc0_scratch6.sem) (show 2 * k.val + 2 = 2 * (k.val + 1) by ring)))
            iapply (fl_outV d L fx (off_5 L k v0) (k0_off5_inb L k k0_h2) v0 a4 a6 cc0_scratch6.sem f0 g4 g6' hl6 hin4); iexists _
            isplitr
            rotate_left
            · isplitl [F10]; · iexact F10
              iexact H6
            ipureintro; intro y; rfl
          isplitl [H5 F9]
          · iapply (Entails.of_eq (congrArg (inSlotV d L fx a5 cc0_scratch5.sem) (show 2 * k.val + 3 = 2 * (k.val + 1) + 1 by ring)))
            iapply (Entails.of_eq (inSlotV_neg d L fx v3').symm)
            isplitl [H5]; · iexists _; iexact H5
            iexact F9
          · iapply (Entails.of_eq (congrArg (outSlotV d L fx a7 cc0_scratch7.sem) (show 2 * k.val + 1 + 2 = 2 * (k.val + 1) + 1 by ring)))
            iapply (fl_outV d L fx (off_10 L k v1) (k0_off10_inb L k k0_h5) v1 a5 a7 cc0_scratch7.sem f1 g5 g7' hl7 hin5); iexists _
            isplitr
            rotate_left
            · isplitl [F11]; · iexact F11
              iexact H7
            ipureintro; intro y; rfl
        · have h7 : k.val = 7 := by unfold valid at v3; omega
          by_cases hb : big L
          · -- the last trip of a tile with sixteen pieces: nothing more to fetch
            have k0_h1 : k0_cond1 k = 1#1 := (cond1_iff k).mpr (by omega)
            have k0_h2 : k0_cond2 L k = 1#1 := cond2_iff L k
            have k0_h3 : ¬ k0_cond3 L k = 1#1 := fun h => absurd ((cond3_iff L k).mp h) (by omega)
            have k0_h4 : k0_cond4 k = 1#1 := (cond4_iff k).mpr (by omega)
            have k0_h5 : k0_cond5 L k = 1#1 := (cond5_iff L k).mpr (by first | (unfold valid big at *; omega) | (unfold big at *; omega) | omega)
            have k0_h6 : ¬ k0_cond6 L k = 1#1 := fun h => absurd ((cond6_iff L k).mp h) (by first | (unfold valid big at *; omega) | (unfold big at *; omega) | omega)
            have v0 : valid L (2 * k.val) := by unfold valid big at *; omega
            have v1 : valid L (2 * k.val + 1) := by unfold valid big at *; omega
            have v2 : ¬ valid L (2 * k.val + 2) := by unfold valid big at *; omega
            have v3' : ¬ valid L (2 * k.val + 3) := by unfold valid big at *; omega
            have hm0 : 2 ≤ 2 * k.val ∧ valid L (2 * k.val - 2) := ⟨by omega, by unfold valid big at *; omega⟩
            have hm1 : 2 ≤ 2 * k.val + 1 ∧ valid L (2 * k.val + 1 - 2) := ⟨by omega, by unfold valid big at *; omega⟩
            ihave S8 := (Entails.of_eq (inSlotV_pos d L fx v0)) $$ S8
            icases S8 with ⟨%g4, %hin4, F8⟩
            ihave S9 := (Entails.of_eq (inSlotV_pos d L fx v1)) $$ S9
            icases S9 with ⟨%g5, %hin5, F9⟩
            ihave S10 := (Entails.of_eq (outSlotV_pos d L fx hm0)) $$ S10
            icases S10 with ⟨%g6, F10, R6⟩
            ihave S11 := (Entails.of_eq (outSlotV_pos d L fx hm1)) $$ S11
            icases S11 with ⟨%g7, F11, R7⟩
            ihave HX := (Entails.of_eq (xSet_out (xP d L fx) k.val hk)) $$ HX
            icases HX with ⟨-, -, HX⟩
            ihave HOut := (Entails.of_eq (oSet_out (oMix d L fx k.val) k.val hk)) $$ HOut
            icases HOut with ⟨Y0, Y1, HOut⟩
            ihave Y0 := (Entails.of_eq ((oMix_ge d L fx (t := k.val) (n := 2 * k.val) (by omega)).trans (oP_pos (F := F) d L v0))) $$ Y0
            icases Y0 with ⟨%f0, Y0⟩
            ihave Y0 := (Entails.of_eq (out_congr d L (off_5 L k v0).symm (out_inb L _) (k0_off5_inb L k k0_h2) f0)) $$ Y0
            ihave Y1 := (Entails.of_eq ((oMix_ge d L fx (t := k.val) (n := 2 * k.val + 1) (by omega)).trans (oP_pos (F := F) d L v1))) $$ Y1
            icases Y1 with ⟨%f1, Y1⟩
            ihave Y1 := (Entails.of_eq (out_congr d L (off_10 L k v1).symm (out_inb L _) (k0_off10_inb L k k0_h5) f1)) $$ Y1
            sl_exec
            sl_for (laneV0 d L g4) $$ [F8_dst R6]
            case region =>
              intro (j : Fin k0_t2_loop.trips) _
              unfold laneV0
              iintro ⟨HA, %g, HB, %hl⟩
              sl_exec
              sl_step
              isplitl [HA]; · iexact HA
              iexists _; isplitl [HB]; · iexact HB
              ipureintro; exact lanes_step d L a4 a6 g4 g j _ _ hl
            · unfold laneV0
              isplitl [F8_dst]; · iexact F8_dst
              iexists _; isplitl [R6]; · iexact R6
              ipureintro; exact lanes_zero d L a4 a6 g4 _
            iintro %_ HI
            unfold laneV0
            icases HI with ⟨H4, %g6', H6, %hl6⟩
            have hl6 : Lanes d L a4 a6 g4 g6' 200 := Eq.mp (congrArg (Lanes d L a4 a6 g4 g6') trips2) hl6
            sl_exec
            sl_for (laneV1 d L g5) $$ [F9_dst R7]
            case region =>
              intro (j : Fin k0_t3_loop.trips) _
              unfold laneV1
              iintro ⟨HA, %g, HB, %hl⟩
              sl_exec
              sl_step
              isplitl [HA]; · iexact HA
              iexists _; isplitl [HB]; · iexact HB
              ipureintro; exact lanes_step' d L a5 a7 g5 g j _ _ hl
            · unfold laneV1
              isplitl [F9_dst]; · iexact F9_dst
              iexists _; isplitl [R7]; · iexact R7
              ipureintro; exact lanes_zero d L a5 a7 g5 _
            iintro %_ HI
            unfold laneV1
            icases HI with ⟨H5, %g7', H7, %hl7⟩
            have hl7 : Lanes d L a5 a7 g5 g7' 200 := Eq.mp (congrArg (Lanes d L a5 a7 g5 g7') trips3) hl7
            sl_exec
            sl_step
            isplitr; · iexact Hmw
            isplitl [HO]
            · iexists _; isplitr
              rotate_left
              · iexact HO
              ipureintro; intro p hp
              rcases Finset.mem_insert.mp hp with rfl | hp
              · exact .inr rfl
              rcases Finset.mem_insert.mp hp with rfl | hp
              · exact .inr rfl
              rcases Finset.mem_insert.mp hp with rfl | hp
              · exact .inr rfl
              rcases Finset.mem_insert.mp hp with rfl | hp
              · exact .inr rfl
              exact hW' p hp
            isplitl [HX F8_src F9_src]
            · iapply (Entails.of_eq (xSet_in (xP d L fx) k.val hk).symm)
              isplitl [F8_src]; · iapply (Entails.of_eq (xP_pos d L fx v0).symm); iexact F8_src
              isplitl [F9_src]; · iapply (Entails.of_eq (xP_pos d L fx v1).symm); iexact F9_src
              iexact HX
            isplitl [HOut F10_dst F11_dst]
            · iapply (Entails.of_eq (oSet_in (oMix d L fx (k.val + 1)) k.val hk (by omega)).symm)
              isplitl [F10_dst]; · iapply (Entails.of_eq ((oMix_lt d L fx (t := k.val + 1) (n := 2 * k.val - 2) (by omega)).trans (oQ_pos d L fx hm0.2)).symm); iexact F10_dst
              isplitl [F11_dst]
              · iapply (Entails.of_eq ((oMix_lt d L fx (t := k.val + 1) (n := 2 * k.val - 1) (by omega)).trans (oQ_pos d L fx (n := 2 * k.val - 1) (by have := hm1.2; rwa [show 2 * k.val + 1 - 2 = 2 * k.val - 1 by omega] at this))).symm)
                iapply (Entails.of_eq (congrArg (oqPiece d L fx) (show 2 * k.val + 1 - 2 = 2 * k.val - 1 by omega))); iexact F11_dst
              iapply (Entails.of_eq (oMix_core d L fx k.val)); iexact HOut
            isplitl [H4 F8]
            · iapply (Entails.of_eq (congrArg (inSlotV d L fx a4 cc0_scratch4.sem) (show 2 * k.val + 2 = 2 * (k.val + 1) by ring)))
              iapply (Entails.of_eq (inSlotV_neg d L fx v2).symm)
              isplitl [H4]; · iexists _; iexact H4
              iexact F8
            isplitl [F10 H6]
            · iapply (Entails.of_eq (congrArg (outSlotV d L fx a6 cc0_scratch6.sem) (show 2 * k.val + 2 = 2 * (k.val + 1) by ring)))
              iapply (fl_outV d L fx (off_5 L k v0) (k0_off5_inb L k k0_h2) v0 a4 a6 cc0_scratch6.sem f0 g4 g6' hl6 hin4); iexists _
              isplitr
              rotate_left
              · isplitl [F10]; · iexact F10
                iexact H6
              ipureintro; intro y; rfl
            isplitl [H5 F9]
            · iapply (Entails.of_eq (congrArg (inSlotV d L fx a5 cc0_scratch5.sem) (show 2 * k.val + 3 = 2 * (k.val + 1) + 1 by ring)))
              iapply (Entails.of_eq (inSlotV_neg d L fx v3').symm)
              isplitl [H5]; · iexists _; iexact H5
              iexact F9
            · iapply (Entails.of_eq (congrArg (outSlotV d L fx a7 cc0_scratch7.sem) (show 2 * k.val + 1 + 2 = 2 * (k.val + 1) + 1 by ring)))
              iapply (fl_outV d L fx (off_10 L k v1) (k0_off10_inb L k k0_h5) v1 a5 a7 cc0_scratch7.sem f1 g5 g7' hl7 hin5); iexists _
              isplitr
              rotate_left
              · isplitl [F11]; · iexact F11
                iexact H7
              ipureintro; intro y; rfl
          · -- the last trip of a tile with fifteen pieces: the second slot only drains
            have k0_h1 : k0_cond1 k = 1#1 := (cond1_iff k).mpr (by omega)
            have k0_h2 : k0_cond2 L k = 1#1 := cond2_iff L k
            have k0_h3 : ¬ k0_cond3 L k = 1#1 := fun h => absurd ((cond3_iff L k).mp h) (by omega)
            have k0_h4 : k0_cond4 k = 1#1 := (cond4_iff k).mpr (by omega)
            have k0_h5 : ¬ k0_cond5 L k = 1#1 := fun h => absurd ((cond5_iff L k).mp h) (by first | (unfold valid big at *; omega) | (unfold big at *; omega) | omega)
            have k0_h6 : ¬ k0_cond6 L k = 1#1 := fun h => absurd ((cond6_iff L k).mp h) (by first | (unfold valid big at *; omega) | (unfold big at *; omega) | omega)
            have v0 : valid L (2 * k.val) := by unfold valid big at *; omega
            have v1 : ¬ valid L (2 * k.val + 1) := by unfold valid big at *; omega
            have v2 : ¬ valid L (2 * k.val + 2) := by unfold valid big at *; omega
            have v3' : ¬ valid L (2 * k.val + 3) := by unfold valid big at *; omega
            have hm0 : 2 ≤ 2 * k.val ∧ valid L (2 * k.val - 2) := ⟨by omega, by unfold valid big at *; omega⟩
            have hm1 : 2 ≤ 2 * k.val + 1 ∧ valid L (2 * k.val + 1 - 2) := ⟨by omega, by unfold valid big at *; omega⟩
            ihave S8 := (Entails.of_eq (inSlotV_pos d L fx v0)) $$ S8
            icases S8 with ⟨%g4, %hin4, F8⟩
            ihave S9 := (Entails.of_eq (inSlotV_neg d L fx v1)) $$ S9
            icases S9 with ⟨⟨%g5, H5⟩, F9⟩
            ihave S10 := (Entails.of_eq (outSlotV_pos d L fx hm0)) $$ S10
            icases S10 with ⟨%g6, F10, R6⟩
            ihave S11 := (Entails.of_eq (outSlotV_pos d L fx hm1)) $$ S11
            icases S11 with ⟨%g7, F11, R7⟩
            ihave HX := (Entails.of_eq (xSet_out (xP d L fx) k.val hk)) $$ HX
            icases HX with ⟨-, -, HX⟩
            ihave HOut := (Entails.of_eq (oSet_out (oMix d L fx k.val) k.val hk)) $$ HOut
            icases HOut with ⟨Y0, -, HOut⟩
            ihave Y0 := (Entails.of_eq ((oMix_ge d L fx (t := k.val) (n := 2 * k.val) (by omega)).trans (oP_pos (F := F) d L v0))) $$ Y0
            icases Y0 with ⟨%f0, Y0⟩
            ihave Y0 := (Entails.of_eq (out_congr d L (off_5 L k v0).symm (out_inb L _) (k0_off5_inb L k k0_h2) f0)) $$ Y0
            sl_exec
            sl_for (laneV0 d L g4) $$ [F8_dst R6]
            case region =>
              intro (j : Fin k0_t2_loop.trips) _
              unfold laneV0
              iintro ⟨HA, %g, HB, %hl⟩
              sl_exec
              sl_step
              isplitl [HA]; · iexact HA
              iexists _; isplitl [HB]; · iexact HB
              ipureintro; exact lanes_step d L a4 a6 g4 g j _ _ hl
            · unfold laneV0
              isplitl [F8_dst]; · iexact F8_dst
              iexists _; isplitl [R6]; · iexact R6
              ipureintro; exact lanes_zero d L a4 a6 g4 _
            iintro %_ HI
            unfold laneV0
            icases HI with ⟨H4, %g6', H6, %hl6⟩
            have hl6 : Lanes d L a4 a6 g4 g6' 200 := Eq.mp (congrArg (Lanes d L a4 a6 g4 g6') trips2) hl6
            sl_exec
            sl_step
            isplitr; · iexact Hmw
            isplitl [HO]
            · iexists _; isplitr
              rotate_left
              · iexact HO
              ipureintro; intro p hp
              rcases Finset.mem_insert.mp hp with rfl | hp
              · exact .inr rfl
              rcases Finset.mem_insert.mp hp with rfl | hp
              · exact .inr rfl
              rcases Finset.mem_insert.mp hp with rfl | hp
              · exact .inr rfl
              exact hW' p hp
            isplitl [HX F8_src]
            · iapply (Entails.of_eq (xSet_in (xP d L fx) k.val hk).symm)
              isplitl [F8_src]; · iapply (Entails.of_eq (xP_pos d L fx v0).symm); iexact F8_src
              isplitr; · iapply (Entails.of_eq (xP_neg d L fx v1).symm); iempintro
              iexact HX
            isplitl [HOut F10_dst F11_dst]
            · iapply (Entails.of_eq (oSet_in (oMix d L fx (k.val + 1)) k.val hk (by omega)).symm)
              isplitl [F10_dst]; · iapply (Entails.of_eq ((oMix_lt d L fx (t := k.val + 1) (n := 2 * k.val - 2) (by omega)).trans (oQ_pos d L fx hm0.2)).symm); iexact F10_dst
              isplitl [F11_dst]
              · iapply (Entails.of_eq ((oMix_lt d L fx (t := k.val + 1) (n := 2 * k.val - 1) (by omega)).trans (oQ_pos d L fx (n := 2 * k.val - 1) (by have := hm1.2; rwa [show 2 * k.val + 1 - 2 = 2 * k.val - 1 by omega] at this))).symm)
                iapply (Entails.of_eq (congrArg (oqPiece d L fx) (show 2 * k.val + 1 - 2 = 2 * k.val - 1 by omega))); iexact F11_dst
              iapply (Entails.of_eq (oMix_core d L fx k.val)); iexact HOut
            isplitl [H4 F8]
            · iapply (Entails.of_eq (congrArg (inSlotV d L fx a4 cc0_scratch4.sem) (show 2 * k.val + 2 = 2 * (k.val + 1) by ring)))
              iapply (Entails.of_eq (inSlotV_neg d L fx v2).symm)
              isplitl [H4]; · iexists _; iexact H4
              iexact F8
            isplitl [F10 H6]
            · iapply (Entails.of_eq (congrArg (outSlotV d L fx a6 cc0_scratch6.sem) (show 2 * k.val + 2 = 2 * (k.val + 1) by ring)))
              iapply (fl_outV d L fx (off_5 L k v0) (k0_off5_inb L k k0_h2) v0 a4 a6 cc0_scratch6.sem f0 g4 g6' hl6 hin4); iexists _
              isplitr
              rotate_left
              · isplitl [F10]; · iexact F10
                iexact H6
              ipureintro; intro y; rfl
            isplitl [H5 F9]
            · iapply (Entails.of_eq (congrArg (inSlotV d L fx a5 cc0_scratch5.sem) (show 2 * k.val + 3 = 2 * (k.val + 1) + 1 by ring)))
              iapply (Entails.of_eq (inSlotV_neg d L fx v3').symm)
              isplitl [H5]; · iexists _; iexact H5
              iexact F9
            · iapply (Entails.of_eq (outSlotV_neg d L fx (m := 2 * (k.val + 1) + 1) (by intro h; apply v1; have := h.2; rwa [show 2 * (k.val + 1) + 1 - 2 = 2 * k.val + 1 by omega] at this)).symm)
              isplitl [R7]; · iexists _; iexact R7
              iexact F11
    · have hk0 : k.val = 0 := by omega
      -- the first trip: nothing to drain
      have k0_h1 : ¬ k0_cond1 k = 1#1 := fun h => absurd ((cond1_iff k).mp h) (by omega)
      have k0_h2 : k0_cond2 L k = 1#1 := cond2_iff L k
      have k0_h3 : k0_cond3 L k = 1#1 := (cond3_iff L k).mpr (by omega)
      have k0_h4 : ¬ k0_cond4 k = 1#1 := fun h => absurd ((cond4_iff k).mp h) (by omega)
      have k0_h5 : k0_cond5 L k = 1#1 := (cond5_iff L k).mpr (by first | (unfold valid big at *; omega) | (unfold big at *; omega) | omega)
      have k0_h6 : k0_cond6 L k = 1#1 := (cond6_iff L k).mpr (by first | (unfold valid big at *; omega) | (unfold big at *; omega) | omega)
      have v0 : valid L (2 * k.val) := by unfold valid big at *; omega
      have v1 : valid L (2 * k.val + 1) := by unfold valid big at *; omega
      have v2 : valid L (2 * k.val + 2) := by unfold valid big at *; omega
      have v3' : valid L (2 * k.val + 3) := by unfold valid big at *; omega
      have hm0 : ¬ (2 ≤ 2 * k.val ∧ valid L (2 * k.val - 2)) := by omega
      have hm1 : ¬ (2 ≤ 2 * k.val + 1 ∧ valid L (2 * k.val + 1 - 2)) := by omega
      ihave S8 := (Entails.of_eq (inSlotV_pos d L fx v0)) $$ S8
      icases S8 with ⟨%g4, %hin4, F8⟩
      ihave S9 := (Entails.of_eq (inSlotV_pos d L fx v1)) $$ S9
      icases S9 with ⟨%g5, %hin5, F9⟩
      ihave S10 := (Entails.of_eq (outSlotV_neg d L fx hm0)) $$ S10
      icases S10 with ⟨⟨%g6, R6⟩, F10⟩
      ihave S11 := (Entails.of_eq (outSlotV_neg d L fx hm1)) $$ S11
      icases S11 with ⟨⟨%g7, R7⟩, F11⟩
      ihave HX := (Entails.of_eq (xSet_out (xP d L fx) k.val hk)) $$ HX
      icases HX with ⟨X2, X3, HX⟩
      ihave X2 := (Entails.of_eq (xP_pos d L fx v2)) $$ X2
      ihave X2 := (Entails.of_eq (in_congr d L (off_6 L k v2).symm (in_inb L _) (k0_off6_inb L k k0_h3) fx)) $$ X2
      ihave X3 := (Entails.of_eq (xP_pos d L fx v3')) $$ X3
      ihave X3 := (Entails.of_eq (in_congr d L (off_11 L k v3').symm (in_inb L _) (k0_off11_inb L k k0_h6) fx)) $$ X3
      ihave HOut := (Entails.of_eq (oSet_out (oMix d L fx k.val) k.val hk)) $$ HOut
      icases HOut with ⟨Y0, Y1, HOut⟩
      ihave Y0 := (Entails.of_eq ((oMix_ge d L fx (t := k.val) (n := 2 * k.val) (by omega)).trans (oP_pos (F := F) d L v0))) $$ Y0
      icases Y0 with ⟨%f0, Y0⟩
      ihave Y0 := (Entails.of_eq (out_congr d L (off_5 L k v0).symm (out_inb L _) (k0_off5_inb L k k0_h2) f0)) $$ Y0
      ihave Y1 := (Entails.of_eq ((oMix_ge d L fx (t := k.val) (n := 2 * k.val + 1) (by omega)).trans (oP_pos (F := F) d L v1))) $$ Y1
      icases Y1 with ⟨%f1, Y1⟩
      ihave Y1 := (Entails.of_eq (out_congr d L (off_10 L k v1).symm (out_inb L _) (k0_off10_inb L k k0_h5) f1)) $$ Y1
      sl_exec
      sl_for (laneV0 d L g4) $$ [F8_dst R6]
      case region =>
        intro (j : Fin k0_t2_loop.trips) _
        unfold laneV0
        iintro ⟨HA, %g, HB, %hl⟩
        sl_exec
        sl_step
        isplitl [HA]; · iexact HA
        iexists _; isplitl [HB]; · iexact HB
        ipureintro; exact lanes_step d L a4 a6 g4 g j _ _ hl
      · unfold laneV0
        isplitl [F8_dst]; · iexact F8_dst
        iexists _; isplitl [R6]; · iexact R6
        ipureintro; exact lanes_zero d L a4 a6 g4 _
      iintro %_ HI
      unfold laneV0
      icases HI with ⟨H4, %g6', H6, %hl6⟩
      have hl6 : Lanes d L a4 a6 g4 g6' 200 := Eq.mp (congrArg (Lanes d L a4 a6 g4 g6') trips2) hl6
      sl_exec
      sl_for (laneV1 d L g5) $$ [F9_dst R7]
      case region =>
        intro (j : Fin k0_t3_loop.trips) _
        unfold laneV1
        iintro ⟨HA, %g, HB, %hl⟩
        sl_exec
        sl_step
        isplitl [HA]; · iexact HA
        iexists _; isplitl [HB]; · iexact HB
        ipureintro; exact lanes_step' d L a5 a7 g5 g j _ _ hl
      · unfold laneV1
        isplitl [F9_dst]; · iexact F9_dst
        iexists _; isplitl [R7]; · iexact R7
        ipureintro; exact lanes_zero d L a5 a7 g5 _
      iintro %_ HI
      unfold laneV1
      icases HI with ⟨H5, %g7', H7, %hl7⟩
      have hl7 : Lanes d L a5 a7 g5 g7' 200 := Eq.mp (congrArg (Lanes d L a5 a7 g5 g7') trips3) hl7
      sl_exec
      sl_step
      isplitr; · iexact Hmw
      isplitl [HO]
      · iexists _; isplitr
        rotate_left
        · iexact HO
        ipureintro; intro p hp
        rcases Finset.mem_insert.mp hp with rfl | hp
        · exact .inr rfl
        rcases Finset.mem_insert.mp hp with rfl | hp
        · exact .inr rfl
        exact hW' p hp
      isplitl [HX F8_src F9_src]
      · iapply (Entails.of_eq (xSet_in (xP d L fx) k.val hk).symm)
        isplitl [F8_src]; · iapply (Entails.of_eq (xP_pos d L fx v0).symm); iexact F8_src
        isplitl [F9_src]; · iapply (Entails.of_eq (xP_pos d L fx v1).symm); iexact F9_src
        iexact HX
      isplitl [HOut]
      · iapply (Entails.of_eq (congrArg (fun s => bigSep s (oMix d L fx (k.val + 1))) (show oCore k.val = oSet (k.val + 1) by rw [hk0]; decide)))
        iapply (Entails.of_eq (oMix_core d L fx k.val)); iexact HOut
      isplitl [F8]
      · iapply (Entails.of_eq (congrArg (inSlotV d L fx a4 cc0_scratch4.sem) (show 2 * k.val + 2 = 2 * (k.val + 1) by ring)))
        iapply (fl_inV d L fx (off_6 L k v2) (k0_off6_inb L k k0_h3) v2 a4 cc0_scratch4.sem); iexists _, _
        isplitr
        rotate_left
        · iexact F8
        ipureintro; intro y; rfl
      isplitl [F10 H6]
      · iapply (Entails.of_eq (congrArg (outSlotV d L fx a6 cc0_scratch6.sem) (show 2 * k.val + 2 = 2 * (k.val + 1) by ring)))
        iapply (fl_outV d L fx (off_5 L k v0) (k0_off5_inb L k k0_h2) v0 a4 a6 cc0_scratch6.sem f0 g4 g6' hl6 hin4); iexists _
        isplitr
        rotate_left
        · isplitl [F10]; · iexact F10
          iexact H6
        ipureintro; intro y; rfl
      isplitl [F9]
      · iapply (Entails.of_eq (congrArg (inSlotV d L fx a5 cc0_scratch5.sem) (show 2 * k.val + 3 = 2 * (k.val + 1) + 1 by ring)))
        iapply (fl_inV d L fx (off_11 L k v3') (k0_off11_inb L k k0_h6) v3' a5 cc0_scratch5.sem); iexists _, _
        isplitr
        rotate_left
        · iexact F9
        ipureintro; intro y; rfl
      · iapply (Entails.of_eq (congrArg (outSlotV d L fx a7 cc0_scratch7.sem) (show 2 * k.val + 1 + 2 = 2 * (k.val + 1) + 1 by ring)))
        iapply (fl_outV d L fx (off_10 L k v1) (k0_off10_inb L k k0_h5) v1 a5 a7 cc0_scratch7.sem f1 g5 g7' hl7 hin5); iexists _
        isplitr
        rotate_left
        · isplitl [F11]; · iexact F11
          iexact H7
        ipureintro; intro y; rfl
  · unfold invV
    isplitr; · iexact Hmw
    isplitl [HO]
    · iexists W; isplitr
      · ipureintro; exact fun p hp => .inl hp
      · iexact HO
    isplitl [HX]; · iexact HX
    isplitl [HOut]; · iapply (Entails.of_eq (oMix_zero d L fx).symm); iexact HOut
    isplitl [S8]; · iexact S8
    isplitl [H6 Hs10]
    · rw [outSlotV_neg d L fx (by omega)]; isplitl [H6]; · iexists _; iexact H6
      iexact Hs10
    isplitl [S9]; · iexact S9
    rw [outSlotV_neg d L fx (by omega)]; isplitl [H7]; · iexists _; iexact H7
    iexact Hs11
  iintro %acc' HI
  ihave HI := (Entails.of_eq (congrArg (fun t => invV d L O W fx t acc') trips1)) $$ HI
  unfold invV
  icases HI with ⟨-, ⟨%W', %hW', HO⟩, HX, HOut, S8, S10, S9, S11⟩
  have nv16 : ¬ valid L (2 * 8) := by unfold valid; omega
  have nv17 : ¬ valid L (2 * 8 + 1) := by unfold valid; omega
  have hm14 : 2 ≤ 2 * 8 ∧ valid L (2 * 8 - 2) := ⟨by omega, Or.inl (by omega)⟩
  ihave S8 := (Entails.of_eq (inSlotV_neg d L fx nv16)) $$ S8
  icases S8 with ⟨⟨%g4', H4⟩, Hs8⟩
  ihave S9 := (Entails.of_eq (inSlotV_neg d L fx nv17)) $$ S9
  icases S9 with ⟨⟨%g5', H5⟩, Hs9⟩
  ihave S10 := (Entails.of_eq (outSlotV_pos d L fx hm14)) $$ S10
  icases S10 with ⟨%g6', F10, R6⟩
  by_cases hb : big L
  · have k0_h8 : k0_cond8 L = 1#1 := (cond8_iff L).mpr hb
    have hm15 : 2 ≤ 2 * 8 + 1 ∧ valid L (2 * 8 + 1 - 2) := ⟨by omega, Or.inr ⟨by omega, hb⟩⟩
    ihave S11 := (Entails.of_eq (outSlotV_pos d L fx hm15)) $$ S11
    icases S11 with ⟨%g7', F11, R7⟩
    sl_exec
    sl_step
    isplitl [HX]; · iapply (xRange_end d L fx); iexact HX
    isplitl [HOut F10_dst F11_dst]
    · iapply (Entails.of_eq (oRange_end (oQ d L fx)).symm)
      isplitl [F10_dst]; · iapply (Entails.of_eq (oQ_pos d L fx hm14.2).symm); iexact F10_dst
      isplitl [F11_dst]; · iapply (Entails.of_eq (oQ_pos d L fx hm15.2).symm); iexact F11_dst
      iapply (Entails.of_eq (oMix_end d L fx)); iexact HOut
    isplitl [H4]; · iexists _; iexact H4
    isplitl [H5]; · iexists _; iexact H5
    isplitl [R6]; · iexists _; iexact R6
    isplitl [R7]; · iexists _; iexact R7
    isplitl [Hs8]; · iexact Hs8
    isplitl [Hs9]; · iexact Hs9
    isplitl [F10]; · iexact F10
    isplitl [F11]; · iexact F11
    isplitl [HO]
    · iexists _; isplitr
      rotate_left
      · iexact HO
      ipureintro; intro p hp
      rcases Finset.mem_insert.mp hp with rfl | hp
      · exact .inr rfl
      rcases Finset.mem_insert.mp hp with rfl | hp
      · exact .inr rfl
      exact hW' p hp
    iexact HR
  · have k0_h8 : ¬ k0_cond8 L = 1#1 := fun h => hb ((cond8_iff L).mp h)
    have hm15 : ¬ (2 ≤ 2 * 8 + 1 ∧ valid L (2 * 8 + 1 - 2)) := by intro h; have := h.2; unfold valid at this; omega
    ihave S11 := (Entails.of_eq (outSlotV_neg d L fx hm15)) $$ S11
    icases S11 with ⟨⟨%g7', R7⟩, F11⟩
    sl_exec
    sl_step
    isplitl [HX]; · iapply (xRange_end d L fx); iexact HX
    isplitl [HOut F10_dst]
    · iapply (Entails.of_eq (oRange_end (oQ d L fx)).symm)
      isplitl [F10_dst]; · iapply (Entails.of_eq (oQ_pos d L fx hm14.2).symm); iexact F10_dst
      isplitr; · iapply (Entails.of_eq (oQ_neg d L fx (n := 15) (by unfold valid; omega)).symm); iempintro
      iapply (Entails.of_eq (oMix_end d L fx)); iexact HOut
    isplitl [H4]; · iexists _; iexact H4
    isplitl [H5]; · iexists _; iexact H5
    isplitl [R6]; · iexists _; iexact R6
    isplitl [R7]; · iexists _; iexact R7
    isplitl [Hs8]; · iexact Hs8
    isplitl [Hs9]; · iexact Hs9
    isplitl [F10]; · iexact F10
    isplitl [F11]; · iexact F11
    isplitl [HO]
    · iexists _; isplitr
      rotate_left
      · iexact HO
      ipureintro; intro p hp
      rcases Finset.mem_insert.mp hp with rfl | hp
      · exact .inr rfl
      exact hW' p hp
    iexact HR

/-! The subcore's scoped storage: the four staging buffers and the four semaphores of this call, and the rest. -/

abbrev c8 : GSem nD τ sig := (thr d L, SemLoc.dma cc0_scratch4.sem)
abbrev c9 : GSem nD τ sig := (thr d L, SemLoc.dma cc0_scratch5.sem)
abbrev c10 : GSem nD τ sig := (thr d L, SemLoc.dma cc0_scratch6.sem)
abbrev c11 : GSem nD τ sig := (thr d L, SemLoc.dma cc0_scratch7.sem)

omit [FloatOps F] in
theorem ownSems0_V :
    (ownSems0 (thr d L) : sProp 𝕄)
      = iprop(semVal (c8 d L) 0 ∗ semVal (c9 d L) 0 ∗ semVal (c10 d L) 0 ∗ semVal (c11 d L) 0
          ∗ bigSep (((((ownCells (thr d L)).erase (c8 d L)).erase (c9 d L)).erase (c10 d L)).erase (c11 d L)) fun g => semVal g 0) := by
  unfold SparseCore.Cfg.ownSems0
  rw [SparseCore.bigSep_erase' ((mem_ownCells (g := c8 d L)).mpr ⟨rfl, by
      show (SemLoc.dma cc0_scratch4.sem : SemLoc sig).isScoped .scVector = true; decide⟩),
    SparseCore.bigSep_erase' (Finset.mem_erase.mpr ⟨fun e => absurd (Prod.mk.inj e).2 (by decide), (mem_ownCells (g := c9 d L)).mpr ⟨rfl, by
      show (SemLoc.dma cc0_scratch5.sem : SemLoc sig).isScoped .scVector = true; decide⟩⟩),
    SparseCore.bigSep_erase' (Finset.mem_erase.mpr ⟨fun e => absurd (Prod.mk.inj e).2 (by decide), Finset.mem_erase.mpr ⟨fun e => absurd (Prod.mk.inj e).2 (by decide),
      (mem_ownCells (g := c10 d L)).mpr ⟨rfl, by show (SemLoc.dma cc0_scratch6.sem : SemLoc sig).isScoped .scVector = true; decide⟩⟩⟩),
    SparseCore.bigSep_erase' (Finset.mem_erase.mpr ⟨fun e => absurd (Prod.mk.inj e).2 (by decide), Finset.mem_erase.mpr ⟨fun e => absurd (Prod.mk.inj e).2 (by decide),
      Finset.mem_erase.mpr ⟨fun e => absurd (Prod.mk.inj e).2 (by decide),
      (mem_ownCells (g := c11 d L)).mpr ⟨rfl, by show (SemLoc.dma cc0_scratch7.sem : SemLoc sig).isScoped .scVector = true; decide⟩⟩⟩⟩)]

abbrev pV (L : grid0.Coords) : Proc τ := Proc.scVector (cV L) (jV L)

omit [FloatOps F] in
theorem ownBufs_V :
    (ownBufs (thr d L) : sProp 𝕄)
      = iprop((∃ f, (thr d L).loc cc0_scratch0 ↦{fullShare} f) ∗ (∃ f, (thr d L).loc cc0_scratch1 ↦{fullShare} f)
          ∗ (∃ f, (thr d L).loc cc0_scratch2 ↦{fullShare} f) ∗ (∃ f, (thr d L).loc cc0_scratch3 ↦{fullShare} f)
          ∗ bigSep (((((ownRefs (τ := τ) (pV L)).erase ((pV L).devRef cc0_scratch0)).erase ((pV L).devRef cc0_scratch1)).erase
              ((pV L).devRef cc0_scratch2)).erase ((pV L).devRef cc0_scratch3))
              fun b => iprop(∃ f, ((d, b) : Loc nD τ sig) ↦{fullShare} f)) := by
  unfold SparseCore.Cfg.ownBufs
  refine (SparseCore.bigSep_erase' (SparseCore.Cfg.mem_ownRefs_of_owner (p := pV L) (b := (pV L).devRef cc0_scratch0) rfl)).trans ?_
  rw [SparseCore.bigSep_erase' (Finset.mem_erase.mpr ⟨fun e => absurd (Proc.devRef_injective _ e) (show (cc0_scratch1 : Ref sig .scVector) ≠ cc0_scratch0 by decide),
      SparseCore.Cfg.mem_ownRefs_of_owner (p := pV L) (b := (pV L).devRef cc0_scratch1) rfl⟩),
    SparseCore.bigSep_erase' (Finset.mem_erase.mpr ⟨fun e => absurd (Proc.devRef_injective _ e) (show (cc0_scratch2 : Ref sig .scVector) ≠ cc0_scratch1 by decide),
      Finset.mem_erase.mpr ⟨fun e => absurd (Proc.devRef_injective _ e) (show (cc0_scratch2 : Ref sig .scVector) ≠ cc0_scratch0 by decide),
      SparseCore.Cfg.mem_ownRefs_of_owner (p := pV L) (b := (pV L).devRef cc0_scratch2) rfl⟩⟩),
    SparseCore.bigSep_erase' (Finset.mem_erase.mpr ⟨fun e => absurd (Proc.devRef_injective _ e) (show (cc0_scratch3 : Ref sig .scVector) ≠ cc0_scratch2 by decide),
      Finset.mem_erase.mpr ⟨fun e => absurd (Proc.devRef_injective _ e) (show (cc0_scratch3 : Ref sig .scVector) ≠ cc0_scratch1 by decide),
      Finset.mem_erase.mpr ⟨fun e => absurd (Proc.devRef_injective _ e) (show (cc0_scratch3 : Ref sig .scVector) ≠ cc0_scratch0 by decide),
      SparseCore.Cfg.mem_ownRefs_of_owner (p := pV L) (b := (pV L).devRef cc0_scratch3) rfl⟩⟩⟩)]

/-- The rest of the subcore's scoped storage, which the task does not touch. -/
def restR : sProp 𝕄 :=
  iprop((bigSep (((((ownRefs (τ := τ) (pV L)).erase ((pV L).devRef cc0_scratch0)).erase ((pV L).devRef cc0_scratch1)).erase
              ((pV L).devRef cc0_scratch2)).erase ((pV L).devRef cc0_scratch3))
              fun b => iprop(∃ f, ((d, b) : Loc nD τ sig) ↦{fullShare} f))
      ∗ bigSep (((((ownCells (thr d L)).erase (c8 d L)).erase (c9 d L)).erase (c10 d L)).erase (c11 d L)) fun g => semVal g 0)

theorem body_pre (hO : ∀ g, O g none = 0) :
    iprop(levAts (K (F := F)).L (K (F := F)).lev ∗ emp ∗ goRes d L fx ∗ ownBufs (thr d L) ∗ ownSems0 (thr d L) ∗ owes (thr d L) O W)
      ⊢ runPre d L O W fx (restR (F := F) d L) := by
  rw [ownSems0_V, ownBufs_V]
  unfold goRes runPre restR
  iintro ⟨#Hlv, -, ⟨HX, HOut⟩, ⟨H4, H5, H6, H7, Hbufs⟩, ⟨Hs8, Hs9, Hs10, Hs11, Hsems⟩, HO⟩
  ihave Hmw := ((K (F := F)).mayWaits_none (thr := thr d L) hO) $$ Hlv
  isplitr; · iexact Hmw
  isplitl [HO]; · iexact HO
  isplitl [HX]; · iexact HX
  isplitl [HOut]; · iexact HOut
  isplitl [H4]; · iexact H4
  isplitl [H5]; · iexact H5
  isplitl [H6]; · iexact H6
  isplitl [H7]; · iexact H7
  isplitl [Hs8]; · iexact Hs8
  isplitl [Hs9]; · iexact Hs9
  isplitl [Hs10]; · iexact Hs10
  isplitl [Hs11]; · iexact Hs11
  isplitl [Hbufs]; · iexact Hbufs
  iexact Hsems

theorem body_post :
    runPost d L O W fx (restR (F := F) d L)
      ⊢ iprop(tdRes d L fx ∗ ownBufs (thr d L) ∗ ownSems0 (thr d L) ∗ ∃ W', ⌜∀ p ∈ W', p ∈ W ∨ p.2 = none⌝ ∗ owes (thr d L) O W') := by
  rw [ownSems0_V, ownBufs_V]
  unfold tdRes runPost restR
  iintro ⟨HX, HOut, H4, H5, H6, H7, Hs8, Hs9, Hs10, Hs11, HW, Hbufs, Hsems⟩
  isplitl [HX HOut]
  · isplitl [HX]; · iexact HX
    iexact HOut
  isplitl [H4 H5 H6 H7 Hbufs]
  · isplitl [H4]; · iexact H4
    isplitl [H5]; · iexact H5
    isplitl [H6]; · iexact H6
    isplitl [H7]; · iexact H7
    iexact Hbufs
  isplitl [Hs8 Hs9 Hs10 Hs11 Hsems]
  · isplitl [Hs8]; · iexact Hs8
    isplitl [Hs9]; · iexact Hs9
    isplitl [Hs10]; · iexact Hs10
    isplitl [Hs11]; · iexact Hs11
    iexact Hsems
  iexact HW

/-- The task in the launch theorem's shape: from what the call hands the tile and the subcore's scoped storage to
    what the tile hands back and the storage again. -/
theorem tile_body (hF : (K (F := F)).Facts) (hO : ∀ g, O g none = 0) :
    iprop(levAts (K (F := F)).L (K (F := F)).lev ∗ emp ∗ goRes d L fx ∗ scopedBufs (thr d L) ∗ scopedSems0 (thr d L) ∗ owes (thr d L) O W)
      ⊢ wp frame (wpE (defs₀ (F := F)) 𝒱₀ (thr d L) none) Set.univ
          (cc0_sc_group L xtW (Memref.isWhole_whole _) oW (Memref.isWhole_whole _) a4 (Memref.isWhole_whole _) a5 (Memref.isWhole_whole _)
            a6 (Memref.isWhole_whole _) a7 (Memref.isWhole_whole _) cc0_scratch4 cc0_scratch5 cc0_scratch6 cc0_scratch7)
          fun _ => iprop(tdRes d L fx ∗ scopedBufs (thr d L) ∗ scopedSems0 (thr d L)
            ∗ ∃ W', ⌜∀ p ∈ W', p ∈ W ∨ p.2 = none⌝ ∗ owes (thr d L) O W') := by
  rw [(K (F := F)).scopedBufs_V hF d (cV L) (jV L), SparseCore.Cfg.scopedSems0_V (Val := Elt F) d (cV L) (jV L)]
  exact (body_pre d L O W fx hO).trans ((tile_run d L O W fx (restR (F := F) d L)).trans (wp_mono frame _ _ fun _ => body_post d L O W fx))

end Tile

end Cert.Proof.TileB0

end
-- ==== Proof.TileVal1.lean ====
/-
  What the staging buffers of one vector subcore hold while it copies a piece of 3200 consecutive elements of row 1 of
  the transposed argument into the flat result, read index by index. No program and no ownership here: only the contents.

  A transfer lands the piece in row 0 of an 8 × 3200 staging array (`InRow`: position (0, t) of that row holds element
  (0, pos + t) of the transposed argument, `pos` the piece's first column). A loop of 200 trips copies that row, 16 lanes
  per trip, into the first 3200 elements of a flat staging array of 25600: trip `j` reads the 1 × 16 window at columns
  [16 j, 16 j + 16) of row 0 and writes it, flattened, at elements [16 j, 16 j + 16). After `j` trips the first 16 j
  elements of the flat array are the first 16 j elements of the row (`Lanes`); a trip extends the prefix by 16
  (`lanes_step`: an element below 16 j is outside the window written and keeps its value, an element of the window reads
  the lane written there, which is the row's element at the same column). A second transfer writes the first 3200
  elements of the flat array to the piece of the result at the same `pos`; so every element of that piece of the result
  holds the element of row 1 of the transposed argument at its own position (`out_written`): the composite of the three
  index maps t ↦ (0, pos + t) ↦ (0, t) ↦ t ↦ pos + t is the identity on positions of the row.
-/
import proofs.«206869_g37898791420194_cont_8to1_b_558_20_alg».proof.Proof.TileK1Defs
import proofs.«206869_g37898791420194_cont_8to1_b_558_20_alg».proof.Proof.Spec
import Idealize.ShloMosaic.Lib.WritesUnit
import Idealize.ShloMosaic.Lib.ValueLayout

noncomputable section

namespace Cert.Proof.TileVal1

open Cert.Proof.TileK1 Cert.KernelIdeal Cert.KernelIdeal.Gen
open Idealize.ShloMosaic Idealize.ShloMosaic.ValueIdx

variable {F : FTy → Type} [FloatOps F]
variable (d : Dev nD) (L : grid1.Coords)
variable (fx : Buf (Elt F) ((Memref.whole main_v0_scv : Memref sig .scVector .hbm S22x1600000 .f32).view.loc (thr d L)))

abbrev rowRect : Rect S8x3200 := Rect.unit (s := S8x3200) ![0, 0] S1x3200.size inb_S8x3200_S1x3200_0_0

/-- row 0 of the staging array is piece n of the argument row -/
def InRow (a : Memref sig .scVector .vmem S8x3200 .f32) (ga : Buf (Elt F) (a.view.loc (thr d L))) (n : ℕ) : Prop :=
  ∀ y : S1x3200.Idx, a.view.read (Elt F) ga (rowRect.emb y) = (inM L n).view.read (Elt F) fx y

theorem inRow_fetch (a : Memref sig .scVector .vmem S8x3200 .f32) (gold : Buf (Elt F) (a.view.loc (thr d L)))
    (w : S1x3200.Idx → Elt F .f32) (n : ℕ) (hw : ∀ y, w y = (inM L n).view.read (Elt F) fx y) :
    InRow d L fx a (a.view.writes (Elt F) gold [⟨rowRect, w⟩]) n :=
  fun y => (View.read_writes_cons_emb a.view gold rowRect w [] y).trans (hw y)

def Lanes (a : Memref sig .scVector .vmem S8x3200 .f32) (b : Memref sig .scVector .vmem S25600 .f32)
    (ga : Buf (Elt F) (a.view.loc (thr d L))) (gb : Buf (Elt F) (b.view.loc (thr d L))) (j : ℕ) : Prop :=
  ∀ (r : ℕ) (hr : r < 3200), r < 16 * j →
    b.view.read (Elt F) gb (ix1 (⟨r, by omega⟩ : Fin 25600)) = a.view.read (Elt F) ga (ix2 (0 : Fin 8) (⟨r, hr⟩ : Fin 3200))

theorem lanes_zero (a : Memref sig .scVector .vmem S8x3200 .f32) (b : Memref sig .scVector .vmem S25600 .f32)
    (ga : Buf (Elt F) (a.view.loc (thr d L))) (gb : Buf (Elt F) (b.view.loc (thr d L))) : Lanes d L a b ga gb 0 := by
  intro r hr h; omega

/-- The 1 × 16 window at column `c` of the staging array, read at lane `t`, is element `(0, c + t)`. -/
theorem idx_window {off : Fin 2 → ℕ} {c : ℕ} (h : off = ![0, c]) (p : ∀ a', off a' + S1x16.size a' ≤ S8x3200.size a')
    (t : Fin 16) (hr : c + t.val < 3200) :
    (Rect.unit (s := S8x3200) off S1x16.size p).toLoadRect.idx (ix2 (0 : Fin 1) t) = ix2 (0 : Fin 8) (⟨c + t.val, hr⟩ : Fin 3200) := by
  subst h
  funext a'; apply Fin.ext
  rw [LoadRect.idx_apply]
  match a' with
  | ⟨0, _⟩ => show 0 + 1 * 0 = 0; omega
  | ⟨1, _⟩ => show c + 1 * t.val = c + t.val; omega

/-- One trip of a lane-copy loop, the offsets given by their closed forms. -/
theorem lanes_step_core (a : Memref sig .scVector .vmem S8x3200 .f32) (b : Memref sig .scVector .vmem S25600 .f32)
    (ga : Buf (Elt F) (a.view.loc (thr d L))) (gb : Buf (Elt F) (b.view.loc (thr d L)))
    (t : ℕ) {off3 : Fin 2 → ℕ} {off4 : Fin 1 → ℕ} (h3 : off3 = ![0, 16 * t]) (h4 : off4 = ![16 * t])
    (p3 : ∀ a', off3 a' + S1x16.size a' ≤ S8x3200.size a') (p4 : ∀ a', off4 a' + S16.size a' ≤ S25600.size a')
    (h : Lanes d L a b ga gb t) :
    Lanes d L a b ga (b.view.writes (Elt F) gb [⟨Rect.unit (s := S25600) off4 S16.size p4,
      shapeCast S16 (a.view.readAt (Elt F) (Rect.unit (s := S8x3200) off3 S1x16.size p3).toLoadRect ga) shapeCasts_S1x16_S16⟩]) (t + 1) := by
  intro r hr hlt
  by_cases hlo : r < 16 * t
  · refine (View.read_writes_cons_unit_of_not_mem b.view gb p4 _ [] _ h4 (0 : Fin 1) (Or.inl ?_)).trans (h r hr hlo)
    show r < 16 * t
    exact hlo
  · have hx : r - 16 * t < 16 := by omega
    refine (View.read_writes_cons_unit_of_mem b.view gb p4 _ [] _ (ix1 (⟨r - 16 * t, hx⟩ : Fin 16)) h4 ?_).trans ?_
    · intro a'
      match a' with
      | ⟨0, _⟩ => show r = 16 * t + (r - 16 * t); omega
    · rw [shapeCast_1a_a_apply, View.readAt_apply, idx_window h3 p3 ⟨r - 16 * t, hx⟩ (by show 16 * t + (r - 16 * t) < 3200; omega)]
      congr 2
      apply Fin.ext
      show 16 * t + (r - 16 * t) = r
      omega

theorem lanes_step (a : Memref sig .scVector .vmem S8x3200 .f32) (b : Memref sig .scVector .vmem S25600 .f32)
    (ga : Buf (Elt F) (a.view.loc (thr d L))) (gb : Buf (Elt F) (b.view.loc (thr d L)))
    (j : Fin k1_t2_loop.trips) (p3 : ∀ a', (k1_off3 j) a' + S1x16.size a' ≤ S8x3200.size a')
    (p4 : ∀ a', (k1_off4 j) a' + S16.size a' ≤ S25600.size a') (h : Lanes d L a b ga gb j.val) :
    Lanes d L a b ga (b.view.writes (Elt F) gb [⟨Rect.unit (s := S25600) (k1_off4 j) S16.size p4,
      k1_pay1 (a.view.readAt (Elt F) (Rect.unit (s := S8x3200) (k1_off3 j) S1x16.size p3).toLoadRect ga)⟩]) (j.val + 1) :=
  lanes_step_core d L a b ga gb j.val (k1_off3_eq j) (k1_off4_eq j) p3 p4 h

theorem lanes_step' (a : Memref sig .scVector .vmem S8x3200 .f32) (b : Memref sig .scVector .vmem S25600 .f32)
    (ga : Buf (Elt F) (a.view.loc (thr d L))) (gb : Buf (Elt F) (b.view.loc (thr d L)))
    (j : Fin k1_t3_loop.trips) (p3 : ∀ a', (k1_off8 j) a' + S1x16.size a' ≤ S8x3200.size a')
    (p4 : ∀ a', (k1_off9 j) a' + S16.size a' ≤ S25600.size a') (h : Lanes d L a b ga gb j.val) :
    Lanes d L a b ga (b.view.writes (Elt F) gb [⟨Rect.unit (s := S25600) (k1_off9 j) S16.size p4,
      k1_pay2 (a.view.readAt (Elt F) (Rect.unit (s := S8x3200) (k1_off8 j) S1x16.size p3).toLoadRect ga)⟩]) (j.val + 1) :=
  lanes_step_core d L a b ga gb j.val (k1_off8_eq j) (k1_off9_eq j) p3 p4 h

/-- Position `y` of the write-out window of the flat staging array is its element `y 0`. -/
theorem stg_emb (y : S3200.Idx) (hy : (y 0).val < 25600) :
    (Rect.unit (s := S25600) ![0] S3200.size inb_S25600_S3200_0).emb y = ix1 (⟨(y 0).val, hy⟩ : Fin 25600) := by
  funext a'; apply Fin.ext
  match a' with
  | ⟨0, _⟩ => show 0 + 1 * (y 0).val = (y 0).val; omega

/-- Position `(0, t)` of row 0 of the staging array is its element `(0, t)`. -/
theorem row_emb (t : Fin 3200) : rowRect.emb (ix2 (0 : Fin 1) t) = ix2 (0 : Fin 8) t := by
  funext a'; apply Fin.ext
  match a' with
  | ⟨0, _⟩ => show 0 + 1 * 0 = 0; omega
  | ⟨1, _⟩ => show 0 + 1 * t.val = t.val; omega

/-- Position `(0, t)` of piece `n` of the argument row is element `(0, pos + t)` of the transposed argument;
    position `y` of piece `n` of the result is element `pos + y 0` of the result. -/
theorem in_emb (n : ℕ) (t : Fin 3200) (h : pos L n + t.val < 1600000) :
    (inM L n).view.emb (ix2 (0 : Fin 1) t) = ix2 (1 : Fin 22) (⟨pos L n + t.val, h⟩ : Fin 1600000) := by
  funext a'; apply Fin.ext
  match a' with
  | ⟨0, _⟩ => show 1 + 1 * 0 = 1; omega
  | ⟨1, _⟩ => show pos L n + 1 * t.val = pos L n + t.val; omega

theorem out_emb (n : ℕ) (y : S3200.Idx) (h : pos L n + (y 0).val < 1600000) :
    (outM L n).view.emb y = ix1 (⟨pos L n + (y 0).val, h⟩ : Fin 1600000) := by
  funext a'; apply Fin.ext
  match a' with
  | ⟨0, _⟩ => show pos L n + 1 * (y 0).val = pos L n + (y 0).val; omega

/-- Both lane-copy loops run 200 trips: 200 · 16 = 3200, the whole row. -/
theorem trips2 : k1_t2_loop.trips = 200 := by decide
theorem trips3 : k1_t3_loop.trips = 200 := by decide

/-- After all its trips a lane-copy loop has copied the whole row. -/
theorem lanes_all (a : Memref sig .scVector .vmem S8x3200 .f32) (b : Memref sig .scVector .vmem S25600 .f32)
    (ga : Buf (Elt F) (a.view.loc (thr d L))) (gb : Buf (Elt F) (b.view.loc (thr d L)))
    (h : Lanes d L a b ga gb k1_t2_loop.trips) : Lanes d L a b ga gb 200 := trips2 ▸ h
theorem lanes_all' (a : Memref sig .scVector .vmem S8x3200 .f32) (b : Memref sig .scVector .vmem S25600 .f32)
    (ga : Buf (Elt F) (a.view.loc (thr d L))) (gb : Buf (Elt F) (b.view.loc (thr d L)))
    (h : Lanes d L a b ga gb k1_t3_loop.trips) : Lanes d L a b ga gb 200 := trips3 ▸ h

/-- The write-out of a piece: the first 3200 elements of the flat staging array, which the 200 lane copies filled from
    row 0 of the staging array, which the fetch filled from piece `n` of row 1 of the transposed argument, land at
    piece `n` of the result, at the same positions of the row. -/
theorem out_written (a : Memref sig .scVector .vmem S8x3200 .f32) (b : Memref sig .scVector .vmem S25600 .f32) (n : ℕ)
    (ga : Buf (Elt F) (a.view.loc (thr d L))) (gb : Buf (Elt F) (b.view.loc (thr d L)))
    (f0 : Buf (Elt F) ((outM L n).view.loc (thr d L))) (w : S3200.Idx → Elt F .f32)
    (hw : ∀ y, w y = (stg b).view.read (Elt F) gb y) (hl : Lanes d L a b ga gb 200) (hr : InRow d L fx a ga n) (hv : valid L n) :
    ∀ i ∈ (outM L n).view.set, ((outM L n).view.writes (Elt F) f0 [⟨Rect.whole _, w⟩]) i = Cert.Spec.row 1 fx i := by
  intro i hi
  obtain ⟨y, -, rfl⟩ := Finset.mem_map.mp hi
  have hy : (y 0).val < 3200 := (y 0).isLt
  have hp : pos L n + (y 0).val < 1600000 := by unfold pos; omega
  have e1 : (outM L n).view.writes (Elt F) f0 [⟨Rect.whole _, w⟩] ((outM L n).view.emb y) = w y := by
    have h := View.read_writes_cons_emb (outM L n).view f0 (Rect.whole _) w [] y
    rw [Rect.emb_whole_apply] at h
    exact (cast_eq _ _).symm.trans ((View.read_apply _ _).symm.trans h)
  have e2 : (stg b).view.read (Elt F) gb y = b.view.read (Elt F) gb (ix1 (⟨(y 0).val, by omega⟩ : Fin 25600)) :=
    congrArg (b.view.read (Elt F) gb) (stg_emb y (by omega))
  have e3 : a.view.read (Elt F) ga (ix2 (0 : Fin 8) (⟨(y 0).val, hy⟩ : Fin 3200))
      = (inM L n).view.read (Elt F) fx (ix2 (0 : Fin 1) (⟨(y 0).val, hy⟩ : Fin 3200)) :=
    (congrArg (a.view.read (Elt F) ga) (row_emb ⟨(y 0).val, hy⟩).symm).trans (hr _)
  have e4 : (inM L n).view.read (Elt F) fx (ix2 (0 : Fin 1) (⟨(y 0).val, hy⟩ : Fin 3200))
      = fx (ix2 (1 : Fin 22) (⟨pos L n + (y 0).val, hp⟩ : Fin 1600000)) :=
    ((View.read_apply _ _).trans (cast_eq _ _)).trans (congrArg fx (in_emb L n ⟨(y 0).val, hy⟩ hp))
  have e5 : Cert.Spec.row 1 fx ((outM L n).view.emb y) = fx (ix2 (1 : Fin 22) (⟨pos L n + (y 0).val, hp⟩ : Fin 1600000)) :=
    (congrArg (Cert.Spec.row 1 fx) (out_emb L n y hp)).trans (Cert.Spec.row_apply 1 fx _)
  exact e1.trans ((hw y).trans (e2.trans ((hl _ hy (by omega)).trans (e3.trans (e4.trans e5.symm)))))

end Cert.Proof.TileVal1

end
-- ==== Proof.TileK1.lean ====
/-
  One vector subcore's task of copy kernel 1 (counting from 0), run symbolically: the two fetch slots and two write-out slots
  between trips of the main loop (what each transfer in flight will hand back, and what the staging buffers hold), the
  invariant of the main loop and of the two lane-copy loops, and the task's run — from the tile's pieces of row 1 of
  the transposed argument and of the result to the same pieces with the result holding the row's elements.
-/
import proofs.«206869_g37898791420194_cont_8to1_b_558_20_alg».proof.Proof.TileK1Defs
import proofs.«206869_g37898791420194_cont_8to1_b_558_20_alg».proof.Proof.TileVal1
noncomputable section

namespace Cert.Proof.TileK1

open Cert.KernelIdeal Cert.KernelIdeal.Gen Cert.Proof.TileVal1
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 22) (Elt F) ℕ UU ℕ
local notation "xtW" => (Memref.whole Cert.KernelIdeal.main_v0_scv : Memref Cert.KernelIdeal.sig Kind.scVector Space.hbm Cert.KernelIdeal.S22x1600000 EltTy.f32)
local notation "oW" => (Memref.whole Cert.KernelIdeal.main_v2_scv : Memref Cert.KernelIdeal.sig Kind.scVector Space.hbm Cert.KernelIdeal.S1600000 EltTy.f32)
local notation "a4" => (Memref.whole Cert.KernelIdeal.cc1_scratch0 : Memref Cert.KernelIdeal.sig Kind.scVector Space.vmem Cert.KernelIdeal.S8x3200 EltTy.f32)
local notation "a5" => (Memref.whole Cert.KernelIdeal.cc1_scratch1 : Memref Cert.KernelIdeal.sig Kind.scVector Space.vmem Cert.KernelIdeal.S8x3200 EltTy.f32)
local notation "a6" => (Memref.whole Cert.KernelIdeal.cc1_scratch2 : Memref Cert.KernelIdeal.sig Kind.scVector Space.vmem Cert.KernelIdeal.S25600 EltTy.f32)
local notation "a7" => (Memref.whole Cert.KernelIdeal.cc1_scratch3 : Memref Cert.KernelIdeal.sig Kind.scVector Space.vmem Cert.KernelIdeal.S25600 EltTy.f32)

variable [FloatOps F]

section Tile

variable (d : Dev nD) (L : grid1.Coords)
variable (O : CellTallies nD τ sig (HIx 22)) (W : Waits sig (HIx 22))
variable (fx : Buf (Elt F) ((xtW).view.loc (thr d L)))

/-- Piece `n` of the result at its final contents. -/
abbrev oqPiece (n : ℕ) : sProp 𝕄 := (outM L n).view.loc (thr d L) ↦[(outM L n).view.set]{fullShare} (Cert.Spec.row 1 fx)
theorem oQ_pos {n : ℕ} (v : valid L n) : oQ d L fx n = oqPiece d L fx n := if_pos v
theorem oQ_neg {n : ℕ} (v : ¬ valid L n) : oQ d L fx n = iprop(emp) := if_neg v

/-- A fetch slot, remembering that the staging row it will hand back holds the piece. -/
def inSlotV (a : Memref sig .scVector .vmem S8x3200 .f32) (sm : DmaSem sig) (n : ℕ) : sProp 𝕄 :=
  if valid L n then
    iprop(∃ g, ⌜InRow d L fx a g n⌝ ∗ Transfers.Flight countersEmb (thr d L) (SemLoc.dma sm) (default : HIx 22) NN
      iprop((a.view.loc (thr d L) ↦{fullShare} g) ∗ xtPiece d L fx n))
  else iprop((∃ g, a.view.loc (thr d L) ↦{fullShare} g) ∗ semVal (thr d L, SemLoc.dma sm) 0)

/-- A write-out slot: the piece in flight will come back holding the row's elements. -/
def outSlotV (a : Memref sig .scVector .vmem S25600 .f32) (sm : DmaSem sig) (m : ℕ) : sProp 𝕄 :=
  if 2 ≤ m ∧ valid L (m - 2) then
    iprop(∃ g, Transfers.Flight countersEmb (thr d L) (SemLoc.dma sm) (default : HIx 22) NN
        iprop(oqPiece d L fx (m - 2) ∗ ((stg a).view.loc (thr d L) ↦[(stg a).view.set]{fullShare} g))
      ∗ (a.view.loc (thr d L) ↦[Finset.univ \ (stg a).view.set]{fullShare} g))
  else iprop((∃ g, a.view.loc (thr d L) ↦{fullShare} g) ∗ semVal (thr d L, SemLoc.dma sm) 0)

theorem inSlotV_pos {a : Memref sig .scVector .vmem S8x3200 .f32} {sm : DmaSem sig} {n : ℕ} (v : valid L n) :
    inSlotV d L fx a sm n = iprop(∃ g, ⌜InRow d L fx a g n⌝ ∗ Transfers.Flight countersEmb (thr d L) (SemLoc.dma sm) (default : HIx 22) NN
      iprop((a.view.loc (thr d L) ↦{fullShare} g) ∗ xtPiece d L fx n)) := by unfold inSlotV; rw [if_pos v]
theorem inSlotV_neg {a : Memref sig .scVector .vmem S8x3200 .f32} {sm : DmaSem sig} {n : ℕ} (v : ¬ valid L n) :
    inSlotV d L fx a sm n = iprop((∃ g, a.view.loc (thr d L) ↦{fullShare} g) ∗ semVal (thr d L, SemLoc.dma sm) 0) := by
  unfold inSlotV; rw [if_neg v]
theorem outSlotV_pos {a : Memref sig .scVector .vmem S25600 .f32} {sm : DmaSem sig} {m : ℕ} (h : 2 ≤ m ∧ valid L (m - 2)) :
    outSlotV d L fx a sm m = iprop(∃ g, Transfers.Flight countersEmb (thr d L) (SemLoc.dma sm) (default : HIx 22) NN
        iprop(oqPiece d L fx (m - 2) ∗ ((stg a).view.loc (thr d L) ↦[(stg a).view.set]{fullShare} g))
      ∗ (a.view.loc (thr d L) ↦[Finset.univ \ (stg a).view.set]{fullShare} g)) := by unfold outSlotV; rw [if_pos h]
theorem outSlotV_neg {a : Memref sig .scVector .vmem S25600 .f32} {sm : DmaSem sig} {m : ℕ} (h : ¬ (2 ≤ m ∧ valid L (m - 2))) :
    outSlotV d L fx a sm m = iprop((∃ g, a.view.loc (thr d L) ↦{fullShare} g) ∗ semVal (thr d L, SemLoc.dma sm) 0) := by
  unfold outSlotV; rw [if_neg h]

/-- A fetch just issued: the staging row will hold what the transfer reads, which is the piece. -/
theorem fl_inV {off : Fin 2 → ℕ} {n : ℕ} (h : off = ![1, pos L n]) (p : ∀ a, off a + S1x3200.size a ≤ S22x1600000.size a) (v : valid L n)
    (a : Memref sig .scVector .vmem S8x3200 .f32) (sm : DmaSem sig) :
    (iprop(∃ (gold : Buf (Elt F) (a.view.loc (thr d L))) (w : S1x3200.Idx → Elt F .f32),
        ⌜∀ y, w y = ((xtW).slice (Rect.unit (s := S22x1600000) off S1x3200.size p) (fun _ => rfl)).view.read (Elt F) fx y⌝
        ∗ Transfers.Flight countersEmb (thr d L) (SemLoc.dma sm) (default : HIx 22) NN
          iprop((a.view.loc (thr d L) ↦{fullShare} a.view.writes (Elt F) gold [⟨rowRect, w⟩])
            ∗ (((xtW).slice (Rect.unit (s := S22x1600000) off S1x3200.size p) (fun _ => rfl)).view.loc (thr d L)
                ↦[((xtW).slice (Rect.unit (s := S22x1600000) off S1x3200.size p) (fun _ => rfl)).view.set]{fullShare} fx))) : sProp 𝕄)
      ⊢ inSlotV d L fx a sm n := by
  subst h
  rw [inSlotV_pos d L fx v]
  iintro ⟨%gold, %w, %hw, H⟩
  iexists _
  isplitr
  · ipureintro; exact inRow_fetch d L fx a gold w n hw
  · iexact H

set_option maxHeartbeats 4000000 in
/-- A write-out just issued from a flat staging buffer whose first 3200 elements are the staging row, itself piece
    `n` of the argument row: the piece of the result will hold the row's elements. -/
theorem fl_outV {off : Fin 1 → ℕ} {n : ℕ} (h : off = ![pos L n]) (p : ∀ a, off a + S3200.size a ≤ S1600000.size a) (v : valid L n)
    (ar : Memref sig .scVector .vmem S8x3200 .f32) (a : Memref sig .scVector .vmem S25600 .f32) (sm : DmaSem sig)
    (f0 : Buf (Elt F) ((oW).view.loc (thr d L))) (ga : Buf (Elt F) (ar.view.loc (thr d L))) (gb : Buf (Elt F) (a.view.loc (thr d L)))
    (hl : Lanes d L ar a ga gb 200) (hr : InRow d L fx ar ga n) :
    (iprop(∃ (w : S3200.Idx → Elt F .f32),
        ⌜∀ y, w y = (stg a).view.read (Elt F) gb y⌝
        ∗ Transfers.Flight countersEmb (thr d L) (SemLoc.dma sm) (default : HIx 22) NN
          iprop((((oW).slice (Rect.unit (s := S1600000) off S3200.size p) (fun _ => rfl)).view.loc (thr d L)
                ↦[((oW).slice (Rect.unit (s := S1600000) off S3200.size p) (fun _ => rfl)).view.set]{fullShare}
                  (((oW).slice (Rect.unit (s := S1600000) off S3200.size p) (fun _ => rfl)).view.writes (Elt F) f0 [⟨Rect.whole _, w⟩]))
            ∗ ((stg a).view.loc (thr d L) ↦[(stg a).view.set]{fullShare} gb))
        ∗ (a.view.loc (thr d L) ↦[Finset.univ \ (stg a).view.set]{fullShare} gb)) : sProp 𝕄)
      ⊢ outSlotV d L fx a sm (n + 2) := by
  subst h
  rw [outSlotV_pos d L fx (m := n + 2) ⟨by omega, by simpa using v⟩]
  iintro ⟨%w, %hw, H, R⟩
  have hD : (iprop(((outM L n).view.loc (thr d L) ↦[(outM L n).view.set]{fullShare} ((outM L n).view.writes (Elt F) f0 [⟨Rect.whole _, w⟩]))
          ∗ ((stg a).view.loc (thr d L) ↦[(stg a).view.set]{fullShare} gb)) : sProp 𝕄)
      ⊢ iprop(oqPiece d L fx (n + 2 - 2) ∗ ((stg a).view.loc (thr d L) ↦[(stg a).view.set]{fullShare} gb)) := by
    rw [Nat.add_sub_cancel]
    have e : (((outM L n).view.loc (thr d L) ↦[(outM L n).view.set]{fullShare} ((outM L n).view.writes (Elt F) f0 [⟨Rect.whole _, w⟩])) : sProp 𝕄)
        = oqPiece d L fx n := pointsTo_congr (out_written d L fx ar a n ga gb f0 w hw hl hr v)
    iintro ⟨H1, H2⟩
    isplitl [H1]
    · iapply (Entails.of_eq e); iexact H1
    · iexact H2
  iexists gb
  isplitl [H]
  · iapply (Transfers.Flight_mono countersEmb (thr d L) hD); iexact H
  · iexact R

/-- The result pieces outside the slots before trip `t`: those already written hold the row, the others some contents. -/
def oMix (t n : ℕ) : sProp 𝕄 := if n + 2 < 2 * t then oQ d L fx n else oP (F := F) d L n
theorem oMix_lt {t n : ℕ} (h : n + 2 < 2 * t) : oMix d L fx t n = oQ d L fx n := if_pos h
theorem oMix_ge {t n : ℕ} (h : ¬ n + 2 < 2 * t) : oMix d L fx t n = oP (F := F) d L n := if_neg h
theorem oMix_core (k : ℕ) : bigSep (oCore k) (oMix d L fx k) = bigSep (oCore k) (oMix d L fx (k + 1)) :=
  bigSep_congr fun n hn => by
    have hn' : n + 2 ≠ 2 * k ∧ n + 2 ≠ 2 * k + 1 ∧ n ≠ 2 * k ∧ n ≠ 2 * k + 1 := by
      simp only [oCore, Finset.mem_filter, Finset.mem_range] at hn; exact hn.2
    by_cases h : n + 2 < 2 * k
    · rw [oMix_lt d L fx h, oMix_lt d L fx (by omega)]
    · rw [oMix_ge d L fx h, oMix_ge d L fx (by omega)]
theorem oMix_zero : bigSep (oSet 0) (oMix d L fx 0) = bigSep (Finset.range 18) (oP (F := F) d L) := by
  rw [oSet_zero]; exact bigSep_congr fun n _ => oMix_ge d L fx (by omega)
theorem oMix_end : bigSep (oSet 8) (oMix d L fx 8) = bigSep (oSet 8) (oQ d L fx) :=
  bigSep_congr fun n hn => by
    have hn' : n < 18 ∧ n + 2 ≠ 16 ∧ n + 2 ≠ 17 := by simpa only [oSet, Finset.mem_filter, Finset.mem_range] using hn
    by_cases h : n + 2 < 2 * 8
    · exact oMix_lt d L fx h
    · rw [oMix_ge d L fx h, oP_neg (F := F) d L (by unfold valid; omega), oQ_neg d L fx (by unfold valid; omega)]

/-- The lane-copy loops: before trip `j` the first 16·j elements of the flat staging buffer are the staging row's. -/
def laneV0 (g4 : Buf (Elt F) ((a4).view.loc (thr d L))) (j : ℕ) (_ : PUnit) : sProp 𝕄 :=
  iprop(((a4).view.loc (thr d L) ↦{fullShare} g4) ∗ (∃ g, ((a6).view.loc (thr d L) ↦{fullShare} g) ∗ ⌜Lanes d L a4 a6 g4 g j⌝))
def laneV1 (g5 : Buf (Elt F) ((a5).view.loc (thr d L))) (j : ℕ) (_ : PUnit) : sProp 𝕄 :=
  iprop(((a5).view.loc (thr d L) ↦{fullShare} g5) ∗ (∃ g, ((a7).view.loc (thr d L) ↦{fullShare} g) ∗ ⌜Lanes d L a5 a7 g5 g j⌝))

def invV (t : ℕ) (_ : PUnit) : sProp 𝕄 :=
  iprop(Transfers.MayWaits (thr d L) (none : HIx 22) O
    ∗ (∃ W', ⌜∀ p ∈ W', p ∈ W ∨ p.2 = none⌝ ∗ owes (thr d L) O W')
    ∗ bigSep (xSet t) (xP d L fx) ∗ bigSep (oSet t) (oMix d L fx t)
    ∗ inSlotV d L fx a4 cc1_scratch4.sem (2 * t) ∗ outSlotV d L fx a6 cc1_scratch6.sem (2 * t)
    ∗ inSlotV d L fx a5 cc1_scratch5.sem (2 * t + 1) ∗ outSlotV d L fx a7 cc1_scratch7.sem (2 * t + 1))

/-- After the last trip nothing of the argument row is in a slot: the tile holds all its pieces. -/
theorem xRange_end : bigSep (xSet 8) (xP d L fx) ⊢ bigSep (Finset.range 18) (xP d L fx) := by
  rw [two_out (s := Finset.range 18) (a := 16) (b := 17) (by decide) (by decide) (by decide),
    show ((Finset.range 18).erase 16).erase 17 = xSet 8 by decide]
  iintro H
  isplitr; · iapply (Entails.of_eq (xP_neg d L fx (n := 16) (by unfold valid; omega)).symm); iempintro
  isplitr; · iapply (Entails.of_eq (xP_neg d L fx (n := 17) (by unfold valid; omega)).symm); iempintro
  iexact H
omit [FloatOps F] in
theorem oRange_end (Φ : ℕ → sProp 𝕄) : bigSep (Finset.range 18) Φ = iprop(Φ 14 ∗ Φ 15 ∗ bigSep (oSet 8) Φ) := by
  rw [two_out (s := Finset.range 18) (a := 14) (b := 15) (by decide) (by decide) (by decide),
    show ((Finset.range 18).erase 14).erase 15 = oSet 8 by decide]

/-- What the run starts from and ends with, beside an untouched rest `R`. -/
def runPre (R : sProp 𝕄) : sProp 𝕄 :=
    iprop(Transfers.MayWaits (thr d L) (none : HIx 22) O ∗ owes (thr d L) O W
        ∗ bigSep (Finset.range 18) (xP d L fx) ∗ bigSep (Finset.range 18) (oP (F := F) d L)
        ∗ (∃ g, (a4).view.loc (thr d L) ↦{fullShare} g) ∗ (∃ g, (a5).view.loc (thr d L) ↦{fullShare} g)
        ∗ (∃ g, (a6).view.loc (thr d L) ↦{fullShare} g) ∗ (∃ g, (a7).view.loc (thr d L) ↦{fullShare} g)
        ∗ semVal (thr d L, SemLoc.dma cc1_scratch4.sem) 0 ∗ semVal (thr d L, SemLoc.dma cc1_scratch5.sem) 0
        ∗ semVal (thr d L, SemLoc.dma cc1_scratch6.sem) 0 ∗ semVal (thr d L, SemLoc.dma cc1_scratch7.sem) 0 ∗ R)
def runPost (R : sProp 𝕄) : sProp 𝕄 :=
    iprop(bigSep (Finset.range 18) (xP d L fx) ∗ bigSep (Finset.range 18) (oQ d L fx)
            ∗ (∃ g, (a4).view.loc (thr d L) ↦{fullShare} g) ∗ (∃ g, (a5).view.loc (thr d L) ↦{fullShare} g)
            ∗ (∃ g, (a6).view.loc (thr d L) ↦{fullShare} g) ∗ (∃ g, (a7).view.loc (thr d L) ↦{fullShare} g)
            ∗ semVal (thr d L, SemLoc.dma cc1_scratch4.sem) 0 ∗ semVal (thr d L, SemLoc.dma cc1_scratch5.sem) 0
            ∗ semVal (thr d L, SemLoc.dma cc1_scratch6.sem) 0 ∗ semVal (thr d L, SemLoc.dma cc1_scratch7.sem) 0
            ∗ (∃ W', ⌜∀ p ∈ W', p ∈ W ∨ p.2 = none⌝ ∗ owes (thr d L) O W') ∗ R)

set_option maxHeartbeats 16000000 in
/-- The task's run: from its pieces of the argument row and of the result, the four staging buffers and the four
    semaphores at zero, to the same with every piece of the result holding the row's elements. -/
theorem tile_run (R : sProp 𝕄) :
    runPre d L O W fx R
      ⊢ wp frame (wpE (defs₀ (F := F)) 𝒱₀ (thr d L) none) Set.univ
          (cc1_sc_group L xtW (Memref.isWhole_whole _) oW (Memref.isWhole_whole _) a4 (Memref.isWhole_whole _) a5 (Memref.isWhole_whole _)
            a6 (Memref.isWhole_whole _) a7 (Memref.isWhole_whole _) cc1_scratch4 cc1_scratch5 cc1_scratch6 cc1_scratch7)
          fun _ => runPost d L O W fx R := by
  unfold runPre runPost
  have v0 : valid L 0 := Or.inl (by omega)
  have v1 : valid L 1 := Or.inl (by omega)
  have k1_h7 : k1_cond7 L = 1#1 := cond7_iff L
  iintro ⟨#Hmw, HO, HX, HOut, ⟨%g4, H4⟩, ⟨%g5, H5⟩, ⟨%g6, H6⟩, ⟨%g7, H7⟩, Hs8, Hs9, Hs10, Hs11, HR⟩
  ihave HX := (Entails.of_eq (xRange_split d L fx v0 v1)) $$ HX
  icases HX with ⟨X0, X1, HX⟩
  ihave X0 := (Entails.of_eq (in_congr d L (off_in0 L v0).symm (in_inb L _) (k1_off1_inb L 0) fx)) $$ X0
  ihave X1 := (Entails.of_eq (in_congr d L (off_in1 L v1).symm (in_inb L _) (k1_off1_inb L 1) fx)) $$ X1
  sl_unfold [cc1_sc_group]
  sl_exec
  ihave S8 := (fl_inV d L fx (off_in0 L v0) (k1_off1_inb L 0) v0 a4 cc1_scratch4.sem) $$ [Hs8]
  · iexists _, _
    isplitr
    rotate_left
    · iexact Hs8
    ipureintro; intro y; rfl
  ihave S9 := (fl_inV d L fx (off_in1 L v1) (k1_off1_inb L 1) v1 a5 cc1_scratch5.sem) $$ [Hs9]
  · iexists _, _
    isplitr
    rotate_left
    · iexact Hs9
    ipureintro; intro y; rfl
  sl_for (invV d L O W fx) $$ [HO HX HOut S8 S9 H6 H7 Hs10 Hs11]
  case region =>
    intro (k : Fin k1_t1_loop.trips) acc
    have hk : k.val < 8 := Nat.lt_of_lt_of_eq k.isLt trips1
    unfold invV
    iintro ⟨#Hmw, ⟨%W', %hW', HO⟩, HX, HOut, S8, S10, S9, S11⟩
    by_cases hk1 : 1 ≤ k.val
    · by_cases v3 : valid L (2 * k.val + 3)
      · -- the generic trip: both drains, both pieces worked, both next fetches issued
        have hk6 : k.val ≤ 6 := by unfold valid at v3; omega
        have k1_h1 : k1_cond1 k = 1#1 := (cond1_iff k).mpr (by omega)
        have k1_h2 : k1_cond2 L k = 1#1 := cond2_iff L k
        have k1_h3 : k1_cond3 L k = 1#1 := (cond3_iff L k).mpr (by omega)
        have k1_h4 : k1_cond4 k = 1#1 := (cond4_iff k).mpr (by omega)
        have k1_h5 : k1_cond5 L k = 1#1 := (cond5_iff L k).mpr (by first | (unfold valid big at *; omega) | (unfold big at *; omega) | omega)
        have k1_h6 : k1_cond6 L k = 1#1 := (cond6_iff L k).mpr (by first | (unfold valid big at *; omega) | (unfold big at *; omega) | omega)
        have v0 : valid L (2 * k.val) := by unfold valid big at *; omega
        have v1 : valid L (2 * k.val + 1) := by unfold valid big at *; omega
        have v2 : valid L (2 * k.val + 2) := by unfold valid big at *; omega
        have v3' : valid L (2 * k.val + 3) := by unfold valid big at *; omega
        have hm0 : 2 ≤ 2 * k.val ∧ valid L (2 * k.val - 2) := ⟨by omega, by unfold valid big at *; omega⟩
        have hm1 : 2 ≤ 2 * k.val + 1 ∧ valid L (2 * k.val + 1 - 2) := ⟨by omega, by unfold valid big at *; omega⟩
        ihave S8 := (Entails.of_eq (inSlotV_pos d L fx v0)) $$ S8
        icases S8 with ⟨%g4, %hin4, F8⟩
        ihave S9 := (Entails.of_eq (inSlotV_pos d L fx v1)) $$ S9
        icases S9 with ⟨%g5, %hin5, F9⟩
        ihave S10 := (Entails.of_eq (outSlotV_pos d L fx hm0)) $$ S10
        icases S10 with ⟨%g6, F10, R6⟩
        ihave S11 := (Entails.of_eq (outSlotV_pos d L fx hm1)) $$ S11
        icases S11 with ⟨%g7, F11, R7⟩
        ihave HX := (Entails.of_eq (xSet_out (xP d L fx) k.val hk)) $$ HX
        icases HX with ⟨X2, X3, HX⟩
        ihave X2 := (Entails.of_eq (xP_pos d L fx v2)) $$ X2
        ihave X2 := (Entails.of_eq (in_congr d L (off_6 L k v2).symm (in_inb L _) (k1_off6_inb L k k1_h3) fx)) $$ X2
        ihave X3 := (Entails.of_eq (xP_pos d L fx v3')) $$ X3
        ihave X3 := (Entails.of_eq (in_congr d L (off_11 L k v3').symm (in_inb L _) (k1_off11_inb L k k1_h6) fx)) $$ X3
        ihave HOut := (Entails.of_eq (oSet_out (oMix d L fx k.val) k.val hk)) $$ HOut
        icases HOut with ⟨Y0, Y1, HOut⟩
        ihave Y0 := (Entails.of_eq ((oMix_ge d L fx (t := k.val) (n := 2 * k.val) (by omega)).trans (oP_pos (F := F) d L v0))) $$ Y0
        icases Y0 with ⟨%f0, Y0⟩
        ihave Y0 := (Entails.of_eq (out_congr d L (off_5 L k v0).symm (out_inb L _) (k1_off5_inb L k k1_h2) f0)) $$ Y0
        ihave Y1 := (Entails.of_eq ((oMix_ge d L fx (t := k.val) (n := 2 * k.val + 1) (by omega)).trans (oP_pos (F := F) d L v1))) $$ Y1
        icases Y1 with ⟨%f1, Y1⟩
        ihave Y1 := (Entails.of_eq (out_congr d L (off_10 L k v1).symm (out_inb L _) (k1_off10_inb L k k1_h5) f1)) $$ Y1
        sl_exec
        sl_for (laneV0 d L g4) $$ [F8_dst R6]
        case region =>
          intro (j : Fin k1_t2_loop.trips) _
          unfold laneV0
          iintro ⟨HA, %g, HB, %hl⟩
          sl_exec
          sl_step
          isplitl [HA]; · iexact HA
          iexists _; isplitl [HB]; · iexact HB
          ipureintro; exact lanes_step d L a4 a6 g4 g j _ _ hl
        · unfold laneV0
          isplitl [F8_dst]; · iexact F8_dst
          iexists _; isplitl [R6]; · iexact R6
          ipureintro; exact lanes_zero d L a4 a6 g4 _
        iintro %_ HI
        unfold laneV0
        icases HI with ⟨H4, %g6', H6, %hl6⟩
        have hl6 : Lanes d L a4 a6 g4 g6' 200 := Eq.mp (congrArg (Lanes d L a4 a6 g4 g6') trips2) hl6
        sl_exec
        sl_for (laneV1 d L g5) $$ [F9_dst R7]
        case region =>
          intro (j : Fin k1_t3_loop.trips) _
          unfold laneV1
          iintro ⟨HA, %g, HB, %hl⟩
          sl_exec
          sl_step
          isplitl [HA]; · iexact HA
          iexists _; isplitl [HB]; · iexact HB
          ipureintro; exact lanes_step' d L a5 a7 g5 g j _ _ hl
        · unfold laneV1
          isplitl [F9_dst]; · iexact F9_dst
          iexists _; isplitl [R7]; · iexact R7
          ipureintro; exact lanes_zero d L a5 a7 g5 _
        iintro %_ HI
        unfold laneV1
        icases HI with ⟨H5, %g7', H7, %hl7⟩
        have hl7 : Lanes d L a5 a7 g5 g7' 200 := Eq.mp (congrArg (Lanes d L a5 a7 g5 g7') trips3) hl7
        sl_exec
        sl_step
        isplitr; · iexact Hmw
        isplitl [HO]
        · iexists _; isplitr
          rotate_left
          · iexact HO
          ipureintro; intro p hp
          rcases Finset.mem_insert.mp hp with rfl | hp
          · exact .inr rfl
          rcases Finset.mem_insert.mp hp with rfl | hp
          · exact .inr rfl
          rcases Finset.mem_insert.mp hp with rfl | hp
          · exact .inr rfl
          rcases Finset.mem_insert.mp hp with rfl | hp
          · exact .inr rfl
          exact hW' p hp
        isplitl [HX F8_src F9_src]
        · iapply (Entails.of_eq (xSet_in (xP d L fx) k.val hk).symm)
          isplitl [F8_src]; · iapply (Entails.of_eq (xP_pos d L fx v0).symm); iexact F8_src
          isplitl [F9_src]; · iapply (Entails.of_eq (xP_pos d L fx v1).symm); iexact F9_src
          iexact HX
        isplitl [HOut F10_dst F11_dst]
        · iapply (Entails.of_eq (oSet_in (oMix d L fx (k.val + 1)) k.val hk (by omega)).symm)
          isplitl [F10_dst]; · iapply (Entails.of_eq ((oMix_lt d L fx (t := k.val + 1) (n := 2 * k.val - 2) (by omega)).trans (oQ_pos d L fx hm0.2)).symm); iexact F10_dst
          isplitl [F11_dst]
          · iapply (Entails.of_eq ((oMix_lt d L fx (t := k.val + 1) (n := 2 * k.val - 1) (by omega)).trans (oQ_pos d L fx (n := 2 * k.val - 1) (by have := hm1.2; rwa [show 2 * k.val + 1 - 2 = 2 * k.val - 1 by omega] at this))).symm)
            iapply (Entails.of_eq (congrArg (oqPiece d L fx) (show 2 * k.val + 1 - 2 = 2 * k.val - 1 by omega))); iexact F11_dst
          iapply (Entails.of_eq (oMix_core d L fx k.val)); iexact HOut
        isplitl [F8]
        · iapply (Entails.of_eq (congrArg (inSlotV d L fx a4 cc1_scratch4.sem) (show 2 * k.val + 2 = 2 * (k.val + 1) by ring)))
          iapply (fl_inV d L fx (off_6 L k v2) (k1_off6_inb L k k1_h3) v2 a4 cc1_scratch4.sem); iexists _, _
          isplitr
          rotate_left
          · iexact F8
          ipureintro; intro y; rfl
        isplitl [F10 H6]
        · iapply (Entails.of_eq (congrArg (outSlotV d L fx a6 cc1_scratch6.sem) (show 2 * k.val + 2 = 2 * (k.val + 1) by ring)))
          iapply (fl_outV d L fx (off_5 L k v0) (k1_off5_inb L k k1_h2) v0 a4 a6 cc1_scratch6.sem f0 g4 g6' hl6 hin4); iexists _
          isplitr
          rotate_left
          · isplitl [F10]; · iexact F10
            iexact H6
          ipureintro; intro y; rfl
        isplitl [F9]
        · iapply (Entails.of_eq (congrArg (inSlotV d L fx a5 cc1_scratch5.sem) (show 2 * k.val + 3 = 2 * (k.val + 1) + 1 by ring)))
          iapply (fl_inV d L fx (off_11 L k v3') (k1_off11_inb L k k1_h6) v3' a5 cc1_scratch5.sem); iexists _, _
          isplitr
          rotate_left
          · iexact F9
          ipureintro; intro y; rfl
        · iapply (Entails.of_eq (congrArg (outSlotV d L fx a7 cc1_scratch7.sem) (show 2 * k.val + 1 + 2 = 2 * (k.val + 1) + 1 by ring)))
          iapply (fl_outV d L fx (off_10 L k v1) (k1_off10_inb L k k1_h5) v1 a5 a7 cc1_scratch7.sem f1 g5 g7' hl7 hin5); iexists _
          isplitr
          rotate_left
          · isplitl [F11]; · iexact F11
            iexact H7
          ipureintro; intro y; rfl
      · by_cases h6 : k.val = 6
        · have hb : ¬ big L := fun hb => v3 (Or.inr ⟨by omega, hb⟩)
          -- trip 6 of a tile with fifteen pieces: no sixteenth piece to fetch
          have k1_h1 : k1_cond1 k = 1#1 := (cond1_iff k).mpr (by omega)
          have k1_h2 : k1_cond2 L k = 1#1 := cond2_iff L k
          have k1_h3 : k1_cond3 L k = 1#1 := (cond3_iff L k).mpr (by omega)
          have k1_h4 : k1_cond4 k = 1#1 := (cond4_iff k).mpr (by omega)
          have k1_h5 : k1_cond5 L k = 1#1 := (cond5_iff L k).mpr (by first | (unfold valid big at *; omega) | (unfold big at *; omega) | omega)
          have k1_h6 : ¬ k1_cond6 L k = 1#1 := fun h => absurd ((cond6_iff L k).mp h) (by first | (unfold valid big at *; omega) | (unfold big at *; omega) | omega)
          have v0 : valid L (2 * k.val) := by unfold valid big at *; omega
          have v1 : valid L (2 * k.val + 1) := by unfold valid big at *; omega
          have v2 : valid L (2 * k.val + 2) := by unfold valid big at *; omega
          have v3' : ¬ valid L (2 * k.val + 3) := by unfold valid big at *; omega
          have hm0 : 2 ≤ 2 * k.val ∧ valid L (2 * k.val - 2) := ⟨by omega, by unfold valid big at *; omega⟩
          have hm1 : 2 ≤ 2 * k.val + 1 ∧ valid L (2 * k.val + 1 - 2) := ⟨by omega, by unfold valid big at *; omega⟩
          ihave S8 := (Entails.of_eq (inSlotV_pos d L fx v0)) $$ S8
          icases S8 with ⟨%g4, %hin4, F8⟩
          ihave S9 := (Entails.of_eq (inSlotV_pos d L fx v1)) $$ S9
          icases S9 with ⟨%g5, %hin5, F9⟩
          ihave S10 := (Entails.of_eq (outSlotV_pos d L fx hm0)) $$ S10
          icases S10 with ⟨%g6, F10, R6⟩
          ihave S11 := (Entails.of_eq (outSlotV_pos d L fx hm1)) $$ S11
          icases S11 with ⟨%g7, F11, R7⟩
          ihave HX := (Entails.of_eq (xSet_out (xP d L fx) k.val hk)) $$ HX
          icases HX with ⟨X2, -, HX⟩
          ihave X2 := (Entails.of_eq (xP_pos d L fx v2)) $$ X2
          ihave X2 := (Entails.of_eq (in_congr d L (off_6 L k v2).symm (in_inb L _) (k1_off6_inb L k k1_h3) fx)) $$ X2
          ihave HOut := (Entails.of_eq (oSet_out (oMix d L fx k.val) k.val hk)) $$ HOut
          icases HOut with ⟨Y0, Y1, HOut⟩
          ihave Y0 := (Entails.of_eq ((oMix_ge d L fx (t := k.val) (n := 2 * k.val) (by omega)).trans (oP_pos (F := F) d L v0))) $$ Y0
          icases Y0 with ⟨%f0, Y0⟩
          ihave Y0 := (Entails.of_eq (out_congr d L (off_5 L k v0).symm (out_inb L _) (k1_off5_inb L k k1_h2) f0)) $$ Y0
          ihave Y1 := (Entails.of_eq ((oMix_ge d L fx (t := k.val) (n := 2 * k.val + 1) (by omega)).trans (oP_pos (F := F) d L v1))) $$ Y1
          icases Y1 with ⟨%f1, Y1⟩
          ihave Y1 := (Entails.of_eq (out_congr d L (off_10 L k v1).symm (out_inb L _) (k1_off10_inb L k k1_h5) f1)) $$ Y1
          sl_exec
          sl_for (laneV0 d L g4) $$ [F8_dst R6]
          case region =>
            intro (j : Fin k1_t2_loop.trips) _
            unfold laneV0
            iintro ⟨HA, %g, HB, %hl⟩
            sl_exec
            sl_step
            isplitl [HA]; · iexact HA
            iexists _; isplitl [HB]; · iexact HB
            ipureintro; exact lanes_step d L a4 a6 g4 g j _ _ hl
          · unfold laneV0
            isplitl [F8_dst]; · iexact F8_dst
            iexists _; isplitl [R6]; · iexact R6
            ipureintro; exact lanes_zero d L a4 a6 g4 _
          iintro %_ HI
          unfold laneV0
          icases HI with ⟨H4, %g6', H6, %hl6⟩
          have hl6 : Lanes d L a4 a6 g4 g6' 200 := Eq.mp (congrArg (Lanes d L a4 a6 g4 g6') trips2) hl6
          sl_exec
          sl_for (laneV1 d L g5) $$ [F9_dst R7]
          case region =>
            intro (j : Fin k1_t3_loop.trips) _
            unfold laneV1
            iintro ⟨HA, %g, HB, %hl⟩
            sl_exec
            sl_step
            isplitl [HA]; · iexact HA
            iexists _; isplitl [HB]; · iexact HB
            ipureintro; exact lanes_step' d L a5 a7 g5 g j _ _ hl
          · unfold laneV1
            isplitl [F9_dst]; · iexact F9_dst
            iexists _; isplitl [R7]; · iexact R7
            ipureintro; exact lanes_zero d L a5 a7 g5 _
          iintro %_ HI
          unfold laneV1
          icases HI with ⟨H5, %g7', H7, %hl7⟩
          have hl7 : Lanes d L a5 a7 g5 g7' 200 := Eq.mp (congrArg (Lanes d L a5 a7 g5 g7') trips3) hl7
          sl_exec
          sl_step
          isplitr; · iexact Hmw
          isplitl [HO]
          · iexists _; isplitr
            rotate_left
            · iexact HO
            ipureintro; intro p hp
            rcases Finset.mem_insert.mp hp with rfl | hp
            · exact .inr rfl
            rcases Finset.mem_insert.mp hp with rfl | hp
            · exact .inr rfl
            rcases Finset.mem_insert.mp hp with rfl | hp
            · exact .inr rfl
            rcases Finset.mem_insert.mp hp with rfl | hp
            · exact .inr rfl
            exact hW' p hp
          isplitl [HX F8_src F9_src]
          · iapply (Entails.of_eq (xSet_in (xP d L fx) k.val hk).symm)
            isplitl [F8_src]; · iapply (Entails.of_eq (xP_pos d L fx v0).symm); iexact F8_src
            isplitl [F9_src]; · iapply (Entails.of_eq (xP_pos d L fx v1).symm); iexact F9_src
            iexact HX
          isplitl [HOut F10_dst F11_dst]
          · iapply (Entails.of_eq (oSet_in (oMix d L fx (k.val + 1)) k.val hk (by omega)).symm)
            isplitl [F10_dst]; · iapply (Entails.of_eq ((oMix_lt d L fx (t := k.val + 1) (n := 2 * k.val - 2) (by omega)).trans (oQ_pos d L fx hm0.2)).symm); iexact F10_dst
            isplitl [F11_dst]
            · iapply (Entails.of_eq ((oMix_lt d L fx (t := k.val + 1) (n := 2 * k.val - 1) (by omega)).trans (oQ_pos d L fx (n := 2 * k.val - 1) (by have := hm1.2; rwa [show 2 * k.val + 1 - 2 = 2 * k.val - 1 by omega] at this))).symm)
              iapply (Entails.of_eq (congrArg (oqPiece d L fx) (show 2 * k.val + 1 - 2 = 2 * k.val - 1 by omega))); iexact F11_dst
            iapply (Entails.of_eq (oMix_core d L fx k.val)); iexact HOut
          isplitl [F8]
          · iapply (Entails.of_eq (congrArg (inSlotV d L fx a4 cc1_scratch4.sem) (show 2 * k.val + 2 = 2 * (k.val + 1) by ring)))
            iapply (fl_inV d L fx (off_6 L k v2) (k1_off6_inb L k k1_h3) v2 a4 cc1_scratch4.sem); iexists _, _
            isplitr
            rotate_left
            · iexact F8
            ipureintro; intro y; rfl
          isplitl [F10 H6]
          · iapply (Entails.of_eq (congrArg (outSlotV d L fx a6 cc1_scratch6.sem) (show 2 * k.val + 2 = 2 * (k.val + 1) by ring)))
            iapply (fl_outV d L fx (off_5 L k v0) (k1_off5_inb L k k1_h2) v0 a4 a6 cc1_scratch6.sem f0 g4 g6' hl6 hin4); iexists _
            isplitr
            rotate_left
            · isplitl [F10]; · iexact F10
              iexact H6
            ipureintro; intro y; rfl
          isplitl [H5 F9]
          · iapply (Entails.of_eq (congrArg (inSlotV d L fx a5 cc1_scratch5.sem) (show 2 * k.val + 3 = 2 * (k.val + 1) + 1 by ring)))
            iapply (Entails.of_eq (inSlotV_neg d L fx v3').symm)
            isplitl [H5]; · iexists _; iexact H5
            iexact F9
          · iapply (Entails.of_eq (congrArg (outSlotV d L fx a7 cc1_scratch7.sem) (show 2 * k.val + 1 + 2 = 2 * (k.val + 1) + 1 by ring)))
            iapply (fl_outV d L fx (off_10 L k v1) (k1_off10_inb L k k1_h5) v1 a5 a7 cc1_scratch7.sem f1 g5 g7' hl7 hin5); iexists _
            isplitr
            rotate_left
            · isplitl [F11]; · iexact F11
              iexact H7
            ipureintro; intro y; rfl
        · have h7 : k.val = 7 := by unfold valid at v3; omega
          by_cases hb : big L
          · -- the last trip of a tile with sixteen pieces: nothing more to fetch
            have k1_h1 : k1_cond1 k = 1#1 := (cond1_iff k).mpr (by omega)
            have k1_h2 : k1_cond2 L k = 1#1 := cond2_iff L k
            have k1_h3 : ¬ k1_cond3 L k = 1#1 := fun h => absurd ((cond3_iff L k).mp h) (by omega)
            have k1_h4 : k1_cond4 k = 1#1 := (cond4_iff k).mpr (by omega)
            have k1_h5 : k1_cond5 L k = 1#1 := (cond5_iff L k).mpr (by first | (unfold valid big at *; omega) | (unfold big at *; omega) | omega)
            have k1_h6 : ¬ k1_cond6 L k = 1#1 := fun h => absurd ((cond6_iff L k).mp h) (by first | (unfold valid big at *; omega) | (unfold big at *; omega) | omega)
            have v0 : valid L (2 * k.val) := by unfold valid big at *; omega
            have v1 : valid L (2 * k.val + 1) := by unfold valid big at *; omega
            have v2 : ¬ valid L (2 * k.val + 2) := by unfold valid big at *; omega
            have v3' : ¬ valid L (2 * k.val + 3) := by unfold valid big at *; omega
            have hm0 : 2 ≤ 2 * k.val ∧ valid L (2 * k.val - 2) := ⟨by omega, by unfold valid big at *; omega⟩
            have hm1 : 2 ≤ 2 * k.val + 1 ∧ valid L (2 * k.val + 1 - 2) := ⟨by omega, by unfold valid big at *; omega⟩
            ihave S8 := (Entails.of_eq (inSlotV_pos d L fx v0)) $$ S8
            icases S8 with ⟨%g4, %hin4, F8⟩
            ihave S9 := (Entails.of_eq (inSlotV_pos d L fx v1)) $$ S9
            icases S9 with ⟨%g5, %hin5, F9⟩
            ihave S10 := (Entails.of_eq (outSlotV_pos d L fx hm0)) $$ S10
            icases S10 with ⟨%g6, F10, R6⟩
            ihave S11 := (Entails.of_eq (outSlotV_pos d L fx hm1)) $$ S11
            icases S11 with ⟨%g7, F11, R7⟩
            ihave HX := (Entails.of_eq (xSet_out (xP d L fx) k.val hk)) $$ HX
            icases HX with ⟨-, -, HX⟩
            ihave HOut := (Entails.of_eq (oSet_out (oMix d L fx k.val) k.val hk)) $$ HOut
            icases HOut with ⟨Y0, Y1, HOut⟩
            ihave Y0 := (Entails.of_eq ((oMix_ge d L fx (t := k.val) (n := 2 * k.val) (by omega)).trans (oP_pos (F := F) d L v0))) $$ Y0
            icases Y0 with ⟨%f0, Y0⟩
            ihave Y0 := (Entails.of_eq (out_congr d L (off_5 L k v0).symm (out_inb L _) (k1_off5_inb L k k1_h2) f0)) $$ Y0
            ihave Y1 := (Entails.of_eq ((oMix_ge d L fx (t := k.val) (n := 2 * k.val + 1) (by omega)).trans (oP_pos (F := F) d L v1))) $$ Y1
            icases Y1 with ⟨%f1, Y1⟩
            ihave Y1 := (Entails.of_eq (out_congr d L (off_10 L k v1).symm (out_inb L _) (k1_off10_inb L k k1_h5) f1)) $$ Y1
            sl_exec
            sl_for (laneV0 d L g4) $$ [F8_dst R6]
            case region =>
              intro (j : Fin k1_t2_loop.trips) _
              unfold laneV0
              iintro ⟨HA, %g, HB, %hl⟩
              sl_exec
              sl_step
              isplitl [HA]; · iexact HA
              iexists _; isplitl [HB]; · iexact HB
              ipureintro; exact lanes_step d L a4 a6 g4 g j _ _ hl
            · unfold laneV0
              isplitl [F8_dst]; · iexact F8_dst
              iexists _; isplitl [R6]; · iexact R6
              ipureintro; exact lanes_zero d L a4 a6 g4 _
            iintro %_ HI
            unfold laneV0
            icases HI with ⟨H4, %g6', H6, %hl6⟩
            have hl6 : Lanes d L a4 a6 g4 g6' 200 := Eq.mp (congrArg (Lanes d L a4 a6 g4 g6') trips2) hl6
            sl_exec
            sl_for (laneV1 d L g5) $$ [F9_dst R7]
            case region =>
              intro (j : Fin k1_t3_loop.trips) _
              unfold laneV1
              iintro ⟨HA, %g, HB, %hl⟩
              sl_exec
              sl_step
              isplitl [HA]; · iexact HA
              iexists _; isplitl [HB]; · iexact HB
              ipureintro; exact lanes_step' d L a5 a7 g5 g j _ _ hl
            · unfold laneV1
              isplitl [F9_dst]; · iexact F9_dst
              iexists _; isplitl [R7]; · iexact R7
              ipureintro; exact lanes_zero d L a5 a7 g5 _
            iintro %_ HI
            unfold laneV1
            icases HI with ⟨H5, %g7', H7, %hl7⟩
            have hl7 : Lanes d L a5 a7 g5 g7' 200 := Eq.mp (congrArg (Lanes d L a5 a7 g5 g7') trips3) hl7
            sl_exec
            sl_step
            isplitr; · iexact Hmw
            isplitl [HO]
            · iexists _; isplitr
              rotate_left
              · iexact HO
              ipureintro; intro p hp
              rcases Finset.mem_insert.mp hp with rfl | hp
              · exact .inr rfl
              rcases Finset.mem_insert.mp hp with rfl | hp
              · exact .inr rfl
              rcases Finset.mem_insert.mp hp with rfl | hp
              · exact .inr rfl
              rcases Finset.mem_insert.mp hp with rfl | hp
              · exact .inr rfl
              exact hW' p hp
            isplitl [HX F8_src F9_src]
            · iapply (Entails.of_eq (xSet_in (xP d L fx) k.val hk).symm)
              isplitl [F8_src]; · iapply (Entails.of_eq (xP_pos d L fx v0).symm); iexact F8_src
              isplitl [F9_src]; · iapply (Entails.of_eq (xP_pos d L fx v1).symm); iexact F9_src
              iexact HX
            isplitl [HOut F10_dst F11_dst]
            · iapply (Entails.of_eq (oSet_in (oMix d L fx (k.val + 1)) k.val hk (by omega)).symm)
              isplitl [F10_dst]; · iapply (Entails.of_eq ((oMix_lt d L fx (t := k.val + 1) (n := 2 * k.val - 2) (by omega)).trans (oQ_pos d L fx hm0.2)).symm); iexact F10_dst
              isplitl [F11_dst]
              · iapply (Entails.of_eq ((oMix_lt d L fx (t := k.val + 1) (n := 2 * k.val - 1) (by omega)).trans (oQ_pos d L fx (n := 2 * k.val - 1) (by have := hm1.2; rwa [show 2 * k.val + 1 - 2 = 2 * k.val - 1 by omega] at this))).symm)
                iapply (Entails.of_eq (congrArg (oqPiece d L fx) (show 2 * k.val + 1 - 2 = 2 * k.val - 1 by omega))); iexact F11_dst
              iapply (Entails.of_eq (oMix_core d L fx k.val)); iexact HOut
            isplitl [H4 F8]
            · iapply (Entails.of_eq (congrArg (inSlotV d L fx a4 cc1_scratch4.sem) (show 2 * k.val + 2 = 2 * (k.val + 1) by ring)))
              iapply (Entails.of_eq (inSlotV_neg d L fx v2).symm)
              isplitl [H4]; · iexists _; iexact H4
              iexact F8
            isplitl [F10 H6]
            · iapply (Entails.of_eq (congrArg (outSlotV d L fx a6 cc1_scratch6.sem) (show 2 * k.val + 2 = 2 * (k.val + 1) by ring)))
              iapply (fl_outV d L fx (off_5 L k v0) (k1_off5_inb L k k1_h2) v0 a4 a6 cc1_scratch6.sem f0 g4 g6' hl6 hin4); iexists _
              isplitr
              rotate_left
              · isplitl [F10]; · iexact F10
                iexact H6
              ipureintro; intro y; rfl
            isplitl [H5 F9]
            · iapply (Entails.of_eq (congrArg (inSlotV d L fx a5 cc1_scratch5.sem) (show 2 * k.val + 3 = 2 * (k.val + 1) + 1 by ring)))
              iapply (Entails.of_eq (inSlotV_neg d L fx v3').symm)
              isplitl [H5]; · iexists _; iexact H5
              iexact F9
            · iapply (Entails.of_eq (congrArg (outSlotV d L fx a7 cc1_scratch7.sem) (show 2 * k.val + 1 + 2 = 2 * (k.val + 1) + 1 by ring)))
              iapply (fl_outV d L fx (off_10 L k v1) (k1_off10_inb L k k1_h5) v1 a5 a7 cc1_scratch7.sem f1 g5 g7' hl7 hin5); iexists _
              isplitr
              rotate_left
              · isplitl [F11]; · iexact F11
                iexact H7
              ipureintro; intro y; rfl
          · -- the last trip of a tile with fifteen pieces: the second slot only drains
            have k1_h1 : k1_cond1 k = 1#1 := (cond1_iff k).mpr (by omega)
            have k1_h2 : k1_cond2 L k = 1#1 := cond2_iff L k
            have k1_h3 : ¬ k1_cond3 L k = 1#1 := fun h => absurd ((cond3_iff L k).mp h) (by omega)
            have k1_h4 : k1_cond4 k = 1#1 := (cond4_iff k).mpr (by omega)
            have k1_h5 : ¬ k1_cond5 L k = 1#1 := fun h => absurd ((cond5_iff L k).mp h) (by first | (unfold valid big at *; omega) | (unfold big at *; omega) | omega)
            have k1_h6 : ¬ k1_cond6 L k = 1#1 := fun h => absurd ((cond6_iff L k).mp h) (by first | (unfold valid big at *; omega) | (unfold big at *; omega) | omega)
            have v0 : valid L (2 * k.val) := by unfold valid big at *; omega
            have v1 : ¬ valid L (2 * k.val + 1) := by unfold valid big at *; omega
            have v2 : ¬ valid L (2 * k.val + 2) := by unfold valid big at *; omega
            have v3' : ¬ valid L (2 * k.val + 3) := by unfold valid big at *; omega
            have hm0 : 2 ≤ 2 * k.val ∧ valid L (2 * k.val - 2) := ⟨by omega, by unfold valid big at *; omega⟩
            have hm1 : 2 ≤ 2 * k.val + 1 ∧ valid L (2 * k.val + 1 - 2) := ⟨by omega, by unfold valid big at *; omega⟩
            ihave S8 := (Entails.of_eq (inSlotV_pos d L fx v0)) $$ S8
            icases S8 with ⟨%g4, %hin4, F8⟩
            ihave S9 := (Entails.of_eq (inSlotV_neg d L fx v1)) $$ S9
            icases S9 with ⟨⟨%g5, H5⟩, F9⟩
            ihave S10 := (Entails.of_eq (outSlotV_pos d L fx hm0)) $$ S10
            icases S10 with ⟨%g6, F10, R6⟩
            ihave S11 := (Entails.of_eq (outSlotV_pos d L fx hm1)) $$ S11
            icases S11 with ⟨%g7, F11, R7⟩
            ihave HX := (Entails.of_eq (xSet_out (xP d L fx) k.val hk)) $$ HX
            icases HX with ⟨-, -, HX⟩
            ihave HOut := (Entails.of_eq (oSet_out (oMix d L fx k.val) k.val hk)) $$ HOut
            icases HOut with ⟨Y0, -, HOut⟩
            ihave Y0 := (Entails.of_eq ((oMix_ge d L fx (t := k.val) (n := 2 * k.val) (by omega)).trans (oP_pos (F := F) d L v0))) $$ Y0
            icases Y0 with ⟨%f0, Y0⟩
            ihave Y0 := (Entails.of_eq (out_congr d L (off_5 L k v0).symm (out_inb L _) (k1_off5_inb L k k1_h2) f0)) $$ Y0
            sl_exec
            sl_for (laneV0 d L g4) $$ [F8_dst R6]
            case region =>
              intro (j : Fin k1_t2_loop.trips) _
              unfold laneV0
              iintro ⟨HA, %g, HB, %hl⟩
              sl_exec
              sl_step
              isplitl [HA]; · iexact HA
              iexists _; isplitl [HB]; · iexact HB
              ipureintro; exact lanes_step d L a4 a6 g4 g j _ _ hl
            · unfold laneV0
              isplitl [F8_dst]; · iexact F8_dst
              iexists _; isplitl [R6]; · iexact R6
              ipureintro; exact lanes_zero d L a4 a6 g4 _
            iintro %_ HI
            unfold laneV0
            icases HI with ⟨H4, %g6', H6, %hl6⟩
            have hl6 : Lanes d L a4 a6 g4 g6' 200 := Eq.mp (congrArg (Lanes d L a4 a6 g4 g6') trips2) hl6
            sl_exec
            sl_step
            isplitr; · iexact Hmw
            isplitl [HO]
            · iexists _; isplitr
              rotate_left
              · iexact HO
              ipureintro; intro p hp
              rcases Finset.mem_insert.mp hp with rfl | hp
              · exact .inr rfl
              rcases Finset.mem_insert.mp hp with rfl | hp
              · exact .inr rfl
              rcases Finset.mem_insert.mp hp with rfl | hp
              · exact .inr rfl
              exact hW' p hp
            isplitl [HX F8_src]
            · iapply (Entails.of_eq (xSet_in (xP d L fx) k.val hk).symm)
              isplitl [F8_src]; · iapply (Entails.of_eq (xP_pos d L fx v0).symm); iexact F8_src
              isplitr; · iapply (Entails.of_eq (xP_neg d L fx v1).symm); iempintro
              iexact HX
            isplitl [HOut F10_dst F11_dst]
            · iapply (Entails.of_eq (oSet_in (oMix d L fx (k.val + 1)) k.val hk (by omega)).symm)
              isplitl [F10_dst]; · iapply (Entails.of_eq ((oMix_lt d L fx (t := k.val + 1) (n := 2 * k.val - 2) (by omega)).trans (oQ_pos d L fx hm0.2)).symm); iexact F10_dst
              isplitl [F11_dst]
              · iapply (Entails.of_eq ((oMix_lt d L fx (t := k.val + 1) (n := 2 * k.val - 1) (by omega)).trans (oQ_pos d L fx (n := 2 * k.val - 1) (by have := hm1.2; rwa [show 2 * k.val + 1 - 2 = 2 * k.val - 1 by omega] at this))).symm)
                iapply (Entails.of_eq (congrArg (oqPiece d L fx) (show 2 * k.val + 1 - 2 = 2 * k.val - 1 by omega))); iexact F11_dst
              iapply (Entails.of_eq (oMix_core d L fx k.val)); iexact HOut
            isplitl [H4 F8]
            · iapply (Entails.of_eq (congrArg (inSlotV d L fx a4 cc1_scratch4.sem) (show 2 * k.val + 2 = 2 * (k.val + 1) by ring)))
              iapply (Entails.of_eq (inSlotV_neg d L fx v2).symm)
              isplitl [H4]; · iexists _; iexact H4
              iexact F8
            isplitl [F10 H6]
            · iapply (Entails.of_eq (congrArg (outSlotV d L fx a6 cc1_scratch6.sem) (show 2 * k.val + 2 = 2 * (k.val + 1) by ring)))
              iapply (fl_outV d L fx (off_5 L k v0) (k1_off5_inb L k k1_h2) v0 a4 a6 cc1_scratch6.sem f0 g4 g6' hl6 hin4); iexists _
              isplitr
              rotate_left
              · isplitl [F10]; · iexact F10
                iexact H6
              ipureintro; intro y; rfl
            isplitl [H5 F9]
            · iapply (Entails.of_eq (congrArg (inSlotV d L fx a5 cc1_scratch5.sem) (show 2 * k.val + 3 = 2 * (k.val + 1) + 1 by ring)))
              iapply (Entails.of_eq (inSlotV_neg d L fx v3').symm)
              isplitl [H5]; · iexists _; iexact H5
              iexact F9
            · iapply (Entails.of_eq (outSlotV_neg d L fx (m := 2 * (k.val + 1) + 1) (by intro h; apply v1; have := h.2; rwa [show 2 * (k.val + 1) + 1 - 2 = 2 * k.val + 1 by omega] at this)).symm)
              isplitl [R7]; · iexists _; iexact R7
              iexact F11
    · have hk0 : k.val = 0 := by omega
      -- the first trip: nothing to drain
      have k1_h1 : ¬ k1_cond1 k = 1#1 := fun h => absurd ((cond1_iff k).mp h) (by omega)
      have k1_h2 : k1_cond2 L k = 1#1 := cond2_iff L k
      have k1_h3 : k1_cond3 L k = 1#1 := (cond3_iff L k).mpr (by omega)
      have k1_h4 : ¬ k1_cond4 k = 1#1 := fun h => absurd ((cond4_iff k).mp h) (by omega)
      have k1_h5 : k1_cond5 L k = 1#1 := (cond5_iff L k).mpr (by first | (unfold valid big at *; omega) | (unfold big at *; omega) | omega)
      have k1_h6 : k1_cond6 L k = 1#1 := (cond6_iff L k).mpr (by first | (unfold valid big at *; omega) | (unfold big at *; omega) | omega)
      have v0 : valid L (2 * k.val) := by unfold valid big at *; omega
      have v1 : valid L (2 * k.val + 1) := by unfold valid big at *; omega
      have v2 : valid L (2 * k.val + 2) := by unfold valid big at *; omega
      have v3' : valid L (2 * k.val + 3) := by unfold valid big at *; omega
      have hm0 : ¬ (2 ≤ 2 * k.val ∧ valid L (2 * k.val - 2)) := by omega
      have hm1 : ¬ (2 ≤ 2 * k.val + 1 ∧ valid L (2 * k.val + 1 - 2)) := by omega
      ihave S8 := (Entails.of_eq (inSlotV_pos d L fx v0)) $$ S8
      icases S8 with ⟨%g4, %hin4, F8⟩
      ihave S9 := (Entails.of_eq (inSlotV_pos d L fx v1)) $$ S9
      icases S9 with ⟨%g5, %hin5, F9⟩
      ihave S10 := (Entails.of_eq (outSlotV_neg d L fx hm0)) $$ S10
      icases S10 with ⟨⟨%g6, R6⟩, F10⟩
      ihave S11 := (Entails.of_eq (outSlotV_neg d L fx hm1)) $$ S11
      icases S11 with ⟨⟨%g7, R7⟩, F11⟩
      ihave HX := (Entails.of_eq (xSet_out (xP d L fx) k.val hk)) $$ HX
      icases HX with ⟨X2, X3, HX⟩
      ihave X2 := (Entails.of_eq (xP_pos d L fx v2)) $$ X2
      ihave X2 := (Entails.of_eq (in_congr d L (off_6 L k v2).symm (in_inb L _) (k1_off6_inb L k k1_h3) fx)) $$ X2
      ihave X3 := (Entails.of_eq (xP_pos d L fx v3')) $$ X3
      ihave X3 := (Entails.of_eq (in_congr d L (off_11 L k v3').symm (in_inb L _) (k1_off11_inb L k k1_h6) fx)) $$ X3
      ihave HOut := (Entails.of_eq (oSet_out (oMix d L fx k.val) k.val hk)) $$ HOut
      icases HOut with ⟨Y0, Y1, HOut⟩
      ihave Y0 := (Entails.of_eq ((oMix_ge d L fx (t := k.val) (n := 2 * k.val) (by omega)).trans (oP_pos (F := F) d L v0))) $$ Y0
      icases Y0 with ⟨%f0, Y0⟩
      ihave Y0 := (Entails.of_eq (out_congr d L (off_5 L k v0).symm (out_inb L _) (k1_off5_inb L k k1_h2) f0)) $$ Y0
      ihave Y1 := (Entails.of_eq ((oMix_ge d L fx (t := k.val) (n := 2 * k.val + 1) (by omega)).trans (oP_pos (F := F) d L v1))) $$ Y1
      icases Y1 with ⟨%f1, Y1⟩
      ihave Y1 := (Entails.of_eq (out_congr d L (off_10 L k v1).symm (out_inb L _) (k1_off10_inb L k k1_h5) f1)) $$ Y1
      sl_exec
      sl_for (laneV0 d L g4) $$ [F8_dst R6]
      case region =>
        intro (j : Fin k1_t2_loop.trips) _
        unfold laneV0
        iintro ⟨HA, %g, HB, %hl⟩
        sl_exec
        sl_step
        isplitl [HA]; · iexact HA
        iexists _; isplitl [HB]; · iexact HB
        ipureintro; exact lanes_step d L a4 a6 g4 g j _ _ hl
      · unfold laneV0
        isplitl [F8_dst]; · iexact F8_dst
        iexists _; isplitl [R6]; · iexact R6
        ipureintro; exact lanes_zero d L a4 a6 g4 _
      iintro %_ HI
      unfold laneV0
      icases HI with ⟨H4, %g6', H6, %hl6⟩
      have hl6 : Lanes d L a4 a6 g4 g6' 200 := Eq.mp (congrArg (Lanes d L a4 a6 g4 g6') trips2) hl6
      sl_exec
      sl_for (laneV1 d L g5) $$ [F9_dst R7]
      case region =>
        intro (j : Fin k1_t3_loop.trips) _
        unfold laneV1
        iintro ⟨HA, %g, HB, %hl⟩
        sl_exec
        sl_step
        isplitl [HA]; · iexact HA
        iexists _; isplitl [HB]; · iexact HB
        ipureintro; exact lanes_step' d L a5 a7 g5 g j _ _ hl
      · unfold laneV1
        isplitl [F9_dst]; · iexact F9_dst
        iexists _; isplitl [R7]; · iexact R7
        ipureintro; exact lanes_zero d L a5 a7 g5 _
      iintro %_ HI
      unfold laneV1
      icases HI with ⟨H5, %g7', H7, %hl7⟩
      have hl7 : Lanes d L a5 a7 g5 g7' 200 := Eq.mp (congrArg (Lanes d L a5 a7 g5 g7') trips3) hl7
      sl_exec
      sl_step
      isplitr; · iexact Hmw
      isplitl [HO]
      · iexists _; isplitr
        rotate_left
        · iexact HO
        ipureintro; intro p hp
        rcases Finset.mem_insert.mp hp with rfl | hp
        · exact .inr rfl
        rcases Finset.mem_insert.mp hp with rfl | hp
        · exact .inr rfl
        exact hW' p hp
      isplitl [HX F8_src F9_src]
      · iapply (Entails.of_eq (xSet_in (xP d L fx) k.val hk).symm)
        isplitl [F8_src]; · iapply (Entails.of_eq (xP_pos d L fx v0).symm); iexact F8_src
        isplitl [F9_src]; · iapply (Entails.of_eq (xP_pos d L fx v1).symm); iexact F9_src
        iexact HX
      isplitl [HOut]
      · iapply (Entails.of_eq (congrArg (fun s => bigSep s (oMix d L fx (k.val + 1))) (show oCore k.val = oSet (k.val + 1) by rw [hk0]; decide)))
        iapply (Entails.of_eq (oMix_core d L fx k.val)); iexact HOut
      isplitl [F8]
      · iapply (Entails.of_eq (congrArg (inSlotV d L fx a4 cc1_scratch4.sem) (show 2 * k.val + 2 = 2 * (k.val + 1) by ring)))
        iapply (fl_inV d L fx (off_6 L k v2) (k1_off6_inb L k k1_h3) v2 a4 cc1_scratch4.sem); iexists _, _
        isplitr
        rotate_left
        · iexact F8
        ipureintro; intro y; rfl
      isplitl [F10 H6]
      · iapply (Entails.of_eq (congrArg (outSlotV d L fx a6 cc1_scratch6.sem) (show 2 * k.val + 2 = 2 * (k.val + 1) by ring)))
        iapply (fl_outV d L fx (off_5 L k v0) (k1_off5_inb L k k1_h2) v0 a4 a6 cc1_scratch6.sem f0 g4 g6' hl6 hin4); iexists _
        isplitr
        rotate_left
        · isplitl [F10]; · iexact F10
          iexact H6
        ipureintro; intro y; rfl
      isplitl [F9]
      · iapply (Entails.of_eq (congrArg (inSlotV d L fx a5 cc1_scratch5.sem) (show 2 * k.val + 3 = 2 * (k.val + 1) + 1 by ring)))
        iapply (fl_inV d L fx (off_11 L k v3') (k1_off11_inb L k k1_h6) v3' a5 cc1_scratch5.sem); iexists _, _
        isplitr
        rotate_left
        · iexact F9
        ipureintro; intro y; rfl
      · iapply (Entails.of_eq (congrArg (outSlotV d L fx a7 cc1_scratch7.sem) (show 2 * k.val + 1 + 2 = 2 * (k.val + 1) + 1 by ring)))
        iapply (fl_outV d L fx (off_10 L k v1) (k1_off10_inb L k k1_h5) v1 a5 a7 cc1_scratch7.sem f1 g5 g7' hl7 hin5); iexists _
        isplitr
        rotate_left
        · isplitl [F11]; · iexact F11
          iexact H7
        ipureintro; intro y; rfl
  · unfold invV
    isplitr; · iexact Hmw
    isplitl [HO]
    · iexists W; isplitr
      · ipureintro; exact fun p hp => .inl hp
      · iexact HO
    isplitl [HX]; · iexact HX
    isplitl [HOut]; · iapply (Entails.of_eq (oMix_zero d L fx).symm); iexact HOut
    isplitl [S8]; · iexact S8
    isplitl [H6 Hs10]
    · rw [outSlotV_neg d L fx (by omega)]; isplitl [H6]; · iexists _; iexact H6
      iexact Hs10
    isplitl [S9]; · iexact S9
    rw [outSlotV_neg d L fx (by omega)]; isplitl [H7]; · iexists _; iexact H7
    iexact Hs11
  iintro %acc' HI
  ihave HI := (Entails.of_eq (congrArg (fun t => invV d L O W fx t acc') trips1)) $$ HI
  unfold invV
  icases HI with ⟨-, ⟨%W', %hW', HO⟩, HX, HOut, S8, S10, S9, S11⟩
  have nv16 : ¬ valid L (2 * 8) := by unfold valid; omega
  have nv17 : ¬ valid L (2 * 8 + 1) := by unfold valid; omega
  have hm14 : 2 ≤ 2 * 8 ∧ valid L (2 * 8 - 2) := ⟨by omega, Or.inl (by omega)⟩
  ihave S8 := (Entails.of_eq (inSlotV_neg d L fx nv16)) $$ S8
  icases S8 with ⟨⟨%g4', H4⟩, Hs8⟩
  ihave S9 := (Entails.of_eq (inSlotV_neg d L fx nv17)) $$ S9
  icases S9 with ⟨⟨%g5', H5⟩, Hs9⟩
  ihave S10 := (Entails.of_eq (outSlotV_pos d L fx hm14)) $$ S10
  icases S10 with ⟨%g6', F10, R6⟩
  by_cases hb : big L
  · have k1_h8 : k1_cond8 L = 1#1 := (cond8_iff L).mpr hb
    have hm15 : 2 ≤ 2 * 8 + 1 ∧ valid L (2 * 8 + 1 - 2) := ⟨by omega, Or.inr ⟨by omega, hb⟩⟩
    ihave S11 := (Entails.of_eq (outSlotV_pos d L fx hm15)) $$ S11
    icases S11 with ⟨%g7', F11, R7⟩
    sl_exec
    sl_step
    isplitl [HX]; · iapply (xRange_end d L fx); iexact HX
    isplitl [HOut F10_dst F11_dst]
    · iapply (Entails.of_eq (oRange_end (oQ d L fx)).symm)
      isplitl [F10_dst]; · iapply (Entails.of_eq (oQ_pos d L fx hm14.2).symm); iexact F10_dst
      isplitl [F11_dst]; · iapply (Entails.of_eq (oQ_pos d L fx hm15.2).symm); iexact F11_dst
      iapply (Entails.of_eq (oMix_end d L fx)); iexact HOut
    isplitl [H4]; · iexists _; iexact H4
    isplitl [H5]; · iexists _; iexact H5
    isplitl [R6]; · iexists _; iexact R6
    isplitl [R7]; · iexists _; iexact R7
    isplitl [Hs8]; · iexact Hs8
    isplitl [Hs9]; · iexact Hs9
    isplitl [F10]; · iexact F10
    isplitl [F11]; · iexact F11
    isplitl [HO]
    · iexists _; isplitr
      rotate_left
      · iexact HO
      ipureintro; intro p hp
      rcases Finset.mem_insert.mp hp with rfl | hp
      · exact .inr rfl
      rcases Finset.mem_insert.mp hp with rfl | hp
      · exact .inr rfl
      exact hW' p hp
    iexact HR
  · have k1_h8 : ¬ k1_cond8 L = 1#1 := fun h => hb ((cond8_iff L).mp h)
    have hm15 : ¬ (2 ≤ 2 * 8 + 1 ∧ valid L (2 * 8 + 1 - 2)) := by intro h; have := h.2; unfold valid at this; omega
    ihave S11 := (Entails.of_eq (outSlotV_neg d L fx hm15)) $$ S11
    icases S11 with ⟨⟨%g7', R7⟩, F11⟩
    sl_exec
    sl_step
    isplitl [HX]; · iapply (xRange_end d L fx); iexact HX
    isplitl [HOut F10_dst]
    · iapply (Entails.of_eq (oRange_end (oQ d L fx)).symm)
      isplitl [F10_dst]; · iapply (Entails.of_eq (oQ_pos d L fx hm14.2).symm); iexact F10_dst
      isplitr; · iapply (Entails.of_eq (oQ_neg d L fx (n := 15) (by unfold valid; omega)).symm); iempintro
      iapply (Entails.of_eq (oMix_end d L fx)); iexact HOut
    isplitl [H4]; · iexists _; iexact H4
    isplitl [H5]; · iexists _; iexact H5
    isplitl [R6]; · iexists _; iexact R6
    isplitl [R7]; · iexists _; iexact R7
    isplitl [Hs8]; · iexact Hs8
    isplitl [Hs9]; · iexact Hs9
    isplitl [F10]; · iexact F10
    isplitl [F11]; · iexact F11
    isplitl [HO]
    · iexists _; isplitr
      rotate_left
      · iexact HO
      ipureintro; intro p hp
      rcases Finset.mem_insert.mp hp with rfl | hp
      · exact .inr rfl
      exact hW' p hp
    iexact HR

/-! The subcore's scoped storage: the four staging buffers and the four semaphores of this call, and the rest. -/

abbrev c8 : GSem nD τ sig := (thr d L, SemLoc.dma cc1_scratch4.sem)
abbrev c9 : GSem nD τ sig := (thr d L, SemLoc.dma cc1_scratch5.sem)
abbrev c10 : GSem nD τ sig := (thr d L, SemLoc.dma cc1_scratch6.sem)
abbrev c11 : GSem nD τ sig := (thr d L, SemLoc.dma cc1_scratch7.sem)

omit [FloatOps F] in
theorem ownSems0_V :
    (ownSems0 (thr d L) : sProp 𝕄)
      = iprop(semVal (c8 d L) 0 ∗ semVal (c9 d L) 0 ∗ semVal (c10 d L) 0 ∗ semVal (c11 d L) 0
          ∗ bigSep (((((ownCells (thr d L)).erase (c8 d L)).erase (c9 d L)).erase (c10 d L)).erase (c11 d L)) fun g => semVal g 0) := by
  unfold SparseCore.Cfg.ownSems0
  rw [SparseCore.bigSep_erase' ((mem_ownCells (g := c8 d L)).mpr ⟨rfl, by
      show (SemLoc.dma cc1_scratch4.sem : SemLoc sig).isScoped .scVector = true; decide⟩),
    SparseCore.bigSep_erase' (Finset.mem_erase.mpr ⟨fun e => absurd (Prod.mk.inj e).2 (by decide), (mem_ownCells (g := c9 d L)).mpr ⟨rfl, by
      show (SemLoc.dma cc1_scratch5.sem : SemLoc sig).isScoped .scVector = true; decide⟩⟩),
    SparseCore.bigSep_erase' (Finset.mem_erase.mpr ⟨fun e => absurd (Prod.mk.inj e).2 (by decide), Finset.mem_erase.mpr ⟨fun e => absurd (Prod.mk.inj e).2 (by decide),
      (mem_ownCells (g := c10 d L)).mpr ⟨rfl, by show (SemLoc.dma cc1_scratch6.sem : SemLoc sig).isScoped .scVector = true; decide⟩⟩⟩),
    SparseCore.bigSep_erase' (Finset.mem_erase.mpr ⟨fun e => absurd (Prod.mk.inj e).2 (by decide), Finset.mem_erase.mpr ⟨fun e => absurd (Prod.mk.inj e).2 (by decide),
      Finset.mem_erase.mpr ⟨fun e => absurd (Prod.mk.inj e).2 (by decide),
      (mem_ownCells (g := c11 d L)).mpr ⟨rfl, by show (SemLoc.dma cc1_scratch7.sem : SemLoc sig).isScoped .scVector = true; decide⟩⟩⟩⟩)]

abbrev pV (L : grid1.Coords) : Proc τ := Proc.scVector (cV L) (jV L)

omit [FloatOps F] in
theorem ownBufs_V :
    (ownBufs (thr d L) : sProp 𝕄)
      = iprop((∃ f, (thr d L).loc cc1_scratch0 ↦{fullShare} f) ∗ (∃ f, (thr d L).loc cc1_scratch1 ↦{fullShare} f)
          ∗ (∃ f, (thr d L).loc cc1_scratch2 ↦{fullShare} f) ∗ (∃ f, (thr d L).loc cc1_scratch3 ↦{fullShare} f)
          ∗ bigSep (((((ownRefs (τ := τ) (pV L)).erase ((pV L).devRef cc1_scratch0)).erase ((pV L).devRef cc1_scratch1)).erase
              ((pV L).devRef cc1_scratch2)).erase ((pV L).devRef cc1_scratch3))
              fun b => iprop(∃ f, ((d, b) : Loc nD τ sig) ↦{fullShare} f)) := by
  unfold SparseCore.Cfg.ownBufs
  refine (SparseCore.bigSep_erase' (SparseCore.Cfg.mem_ownRefs_of_owner (p := pV L) (b := (pV L).devRef cc1_scratch0) rfl)).trans ?_
  rw [SparseCore.bigSep_erase' (Finset.mem_erase.mpr ⟨fun e => absurd (Proc.devRef_injective _ e) (show (cc1_scratch1 : Ref sig .scVector) ≠ cc1_scratch0 by decide),
      SparseCore.Cfg.mem_ownRefs_of_owner (p := pV L) (b := (pV L).devRef cc1_scratch1) rfl⟩),
    SparseCore.bigSep_erase' (Finset.mem_erase.mpr ⟨fun e => absurd (Proc.devRef_injective _ e) (show (cc1_scratch2 : Ref sig .scVector) ≠ cc1_scratch1 by decide),
      Finset.mem_erase.mpr ⟨fun e => absurd (Proc.devRef_injective _ e) (show (cc1_scratch2 : Ref sig .scVector) ≠ cc1_scratch0 by decide),
      SparseCore.Cfg.mem_ownRefs_of_owner (p := pV L) (b := (pV L).devRef cc1_scratch2) rfl⟩⟩),
    SparseCore.bigSep_erase' (Finset.mem_erase.mpr ⟨fun e => absurd (Proc.devRef_injective _ e) (show (cc1_scratch3 : Ref sig .scVector) ≠ cc1_scratch2 by decide),
      Finset.mem_erase.mpr ⟨fun e => absurd (Proc.devRef_injective _ e) (show (cc1_scratch3 : Ref sig .scVector) ≠ cc1_scratch1 by decide),
      Finset.mem_erase.mpr ⟨fun e => absurd (Proc.devRef_injective _ e) (show (cc1_scratch3 : Ref sig .scVector) ≠ cc1_scratch0 by decide),
      SparseCore.Cfg.mem_ownRefs_of_owner (p := pV L) (b := (pV L).devRef cc1_scratch3) rfl⟩⟩⟩)]

/-- The rest of the subcore's scoped storage, which the task does not touch. -/
def restR : sProp 𝕄 :=
  iprop((bigSep (((((ownRefs (τ := τ) (pV L)).erase ((pV L).devRef cc1_scratch0)).erase ((pV L).devRef cc1_scratch1)).erase
              ((pV L).devRef cc1_scratch2)).erase ((pV L).devRef cc1_scratch3))
              fun b => iprop(∃ f, ((d, b) : Loc nD τ sig) ↦{fullShare} f))
      ∗ bigSep (((((ownCells (thr d L)).erase (c8 d L)).erase (c9 d L)).erase (c10 d L)).erase (c11 d L)) fun g => semVal g 0)

theorem body_pre (hO : ∀ g, O g none = 0) :
    iprop(levAts (K (F := F)).L (K (F := F)).lev ∗ emp ∗ goRes d L fx ∗ ownBufs (thr d L) ∗ ownSems0 (thr d L) ∗ owes (thr d L) O W)
      ⊢ runPre d L O W fx (restR (F := F) d L) := by
  rw [ownSems0_V, ownBufs_V]
  unfold goRes runPre restR
  iintro ⟨#Hlv, -, ⟨HX, HOut⟩, ⟨H4, H5, H6, H7, Hbufs⟩, ⟨Hs8, Hs9, Hs10, Hs11, Hsems⟩, HO⟩
  ihave Hmw := ((K (F := F)).mayWaits_none (thr := thr d L) hO) $$ Hlv
  isplitr; · iexact Hmw
  isplitl [HO]; · iexact HO
  isplitl [HX]; · iexact HX
  isplitl [HOut]; · iexact HOut
  isplitl [H4]; · iexact H4
  isplitl [H5]; · iexact H5
  isplitl [H6]; · iexact H6
  isplitl [H7]; · iexact H7
  isplitl [Hs8]; · iexact Hs8
  isplitl [Hs9]; · iexact Hs9
  isplitl [Hs10]; · iexact Hs10
  isplitl [Hs11]; · iexact Hs11
  isplitl [Hbufs]; · iexact Hbufs
  iexact Hsems

theorem body_post :
    runPost d L O W fx (restR (F := F) d L)
      ⊢ iprop(tdRes d L fx ∗ ownBufs (thr d L) ∗ ownSems0 (thr d L) ∗ ∃ W', ⌜∀ p ∈ W', p ∈ W ∨ p.2 = none⌝ ∗ owes (thr d L) O W') := by
  rw [ownSems0_V, ownBufs_V]
  unfold tdRes runPost restR
  iintro ⟨HX, HOut, H4, H5, H6, H7, Hs8, Hs9, Hs10, Hs11, HW, Hbufs, Hsems⟩
  isplitl [HX HOut]
  · isplitl [HX]; · iexact HX
    iexact HOut
  isplitl [H4 H5 H6 H7 Hbufs]
  · isplitl [H4]; · iexact H4
    isplitl [H5]; · iexact H5
    isplitl [H6]; · iexact H6
    isplitl [H7]; · iexact H7
    iexact Hbufs
  isplitl [Hs8 Hs9 Hs10 Hs11 Hsems]
  · isplitl [Hs8]; · iexact Hs8
    isplitl [Hs9]; · iexact Hs9
    isplitl [Hs10]; · iexact Hs10
    isplitl [Hs11]; · iexact Hs11
    iexact Hsems
  iexact HW

/-- The task in the launch theorem's shape: from what the call hands the tile and the subcore's scoped storage to
    what the tile hands back and the storage again. -/
theorem tile_body (hF : (K (F := F)).Facts) (hO : ∀ g, O g none = 0) :
    iprop(levAts (K (F := F)).L (K (F := F)).lev ∗ emp ∗ goRes d L fx ∗ scopedBufs (thr d L) ∗ scopedSems0 (thr d L) ∗ owes (thr d L) O W)
      ⊢ wp frame (wpE (defs₀ (F := F)) 𝒱₀ (thr d L) none) Set.univ
          (cc1_sc_group L xtW (Memref.isWhole_whole _) oW (Memref.isWhole_whole _) a4 (Memref.isWhole_whole _) a5 (Memref.isWhole_whole _)
            a6 (Memref.isWhole_whole _) a7 (Memref.isWhole_whole _) cc1_scratch4 cc1_scratch5 cc1_scratch6 cc1_scratch7)
          fun _ => iprop(tdRes d L fx ∗ scopedBufs (thr d L) ∗ scopedSems0 (thr d L)
            ∗ ∃ W', ⌜∀ p ∈ W', p ∈ W ∨ p.2 = none⌝ ∗ owes (thr d L) O W') := by
  rw [(K (F := F)).scopedBufs_V hF d (cV L) (jV L), SparseCore.Cfg.scopedSems0_V (Val := Elt F) d (cV L) (jV L)]
  exact (body_pre d L O W fx hO).trans ((tile_run d L O W fx (restR (F := F) d L)).trans (wp_mono frame _ _ fun _ => body_post d L O W fx))

end Tile

end Cert.Proof.TileK1

end
-- ==== Proof.TileBVal1.lean ====
/-
  What the staging buffers of one vector subcore hold while it copies a piece of 3200 consecutive elements of row 1 of
  the transposed argument into the flat result, read index by index. No program and no ownership here: only the contents.

  A transfer lands the piece in row 0 of an 8 × 3200 staging array (`InRow`: position (0, t) of that row holds element
  (0, pos + t) of the transposed argument, `pos` the piece's first column). A loop of 200 trips copies that row, 16 lanes
  per trip, into the first 3200 elements of a flat staging array of 25600: trip `j` reads the 1 × 16 window at columns
  [16 j, 16 j + 16) of row 0 and writes it, flattened, at elements [16 j, 16 j + 16). After `j` trips the first 16 j
  elements of the flat array are the first 16 j elements of the row (`Lanes`); a trip extends the prefix by 16
  (`lanes_step`: an element below 16 j is outside the window written and keeps its value, an element of the window reads
  the lane written there, which is the row's element at the same column). A second transfer writes the first 3200
  elements of the flat array to the piece of the result at the same `pos`; so every element of that piece of the result
  holds the element of row 1 of the transposed argument at its own position (`out_written`): the composite of the three
  index maps t ↦ (0, pos + t) ↦ (0, t) ↦ t ↦ pos + t is the identity on positions of the row.
-/
import proofs.«206869_g37898791420194_cont_8to1_b_558_20_alg».proof.Proof.TileB1Defs
import proofs.«206869_g37898791420194_cont_8to1_b_558_20_alg».proof.Proof.Spec
import Idealize.ShloMosaic.Lib.WritesUnit
import Idealize.ShloMosaic.Lib.ValueLayout

noncomputable section

namespace Cert.Proof.TileBVal1

open Cert.Proof.TileB1 Cert.Kernel Cert.Kernel.Gen
open Idealize.ShloMosaic Idealize.ShloMosaic.ValueIdx

variable {F : FTy → Type} [FloatOps F]
variable (d : Dev nD) (L : grid1.Coords)
variable (fx : Buf (Elt F) ((Memref.whole main_v0_scv : Memref sig .scVector .hbm S22x1600000 .f32).view.loc (thr d L)))

abbrev rowRect : Rect S8x3200 := Rect.unit (s := S8x3200) ![0, 0] S1x3200.size inb_S8x3200_S1x3200_0_0

/-- row 0 of the staging array is piece n of the argument row -/
def InRow (a : Memref sig .scVector .vmem S8x3200 .f32) (ga : Buf (Elt F) (a.view.loc (thr d L))) (n : ℕ) : Prop :=
  ∀ y : S1x3200.Idx, a.view.read (Elt F) ga (rowRect.emb y) = (inM L n).view.read (Elt F) fx y

theorem inRow_fetch (a : Memref sig .scVector .vmem S8x3200 .f32) (gold : Buf (Elt F) (a.view.loc (thr d L)))
    (w : S1x3200.Idx → Elt F .f32) (n : ℕ) (hw : ∀ y, w y = (inM L n).view.read (Elt F) fx y) :
    InRow d L fx a (a.view.writes (Elt F) gold [⟨rowRect, w⟩]) n :=
  fun y => (View.read_writes_cons_emb a.view gold rowRect w [] y).trans (hw y)

def Lanes (a : Memref sig .scVector .vmem S8x3200 .f32) (b : Memref sig .scVector .vmem S25600 .f32)
    (ga : Buf (Elt F) (a.view.loc (thr d L))) (gb : Buf (Elt F) (b.view.loc (thr d L))) (j : ℕ) : Prop :=
  ∀ (r : ℕ) (hr : r < 3200), r < 16 * j →
    b.view.read (Elt F) gb (ix1 (⟨r, by omega⟩ : Fin 25600)) = a.view.read (Elt F) ga (ix2 (0 : Fin 8) (⟨r, hr⟩ : Fin 3200))

theorem lanes_zero (a : Memref sig .scVector .vmem S8x3200 .f32) (b : Memref sig .scVector .vmem S25600 .f32)
    (ga : Buf (Elt F) (a.view.loc (thr d L))) (gb : Buf (Elt F) (b.view.loc (thr d L))) : Lanes d L a b ga gb 0 := by
  intro r hr h; omega

/-- The 1 × 16 window at column `c` of the staging array, read at lane `t`, is element `(0, c + t)`. -/
theorem idx_window {off : Fin 2 → ℕ} {c : ℕ} (h : off = ![0, c]) (p : ∀ a', off a' + S1x16.size a' ≤ S8x3200.size a')
    (t : Fin 16) (hr : c + t.val < 3200) :
    (Rect.unit (s := S8x3200) off S1x16.size p).toLoadRect.idx (ix2 (0 : Fin 1) t) = ix2 (0 : Fin 8) (⟨c + t.val, hr⟩ : Fin 3200) := by
  subst h
  funext a'; apply Fin.ext
  rw [LoadRect.idx_apply]
  match a' with
  | ⟨0, _⟩ => show 0 + 1 * 0 = 0; omega
  | ⟨1, _⟩ => show c + 1 * t.val = c + t.val; omega

/-- One trip of a lane-copy loop, the offsets given by their closed forms. -/
theorem lanes_step_core (a : Memref sig .scVector .vmem S8x3200 .f32) (b : Memref sig .scVector .vmem S25600 .f32)
    (ga : Buf (Elt F) (a.view.loc (thr d L))) (gb : Buf (Elt F) (b.view.loc (thr d L)))
    (t : ℕ) {off3 : Fin 2 → ℕ} {off4 : Fin 1 → ℕ} (h3 : off3 = ![0, 16 * t]) (h4 : off4 = ![16 * t])
    (p3 : ∀ a', off3 a' + S1x16.size a' ≤ S8x3200.size a') (p4 : ∀ a', off4 a' + S16.size a' ≤ S25600.size a')
    (h : Lanes d L a b ga gb t) :
    Lanes d L a b ga (b.view.writes (Elt F) gb [⟨Rect.unit (s := S25600) off4 S16.size p4,
      shapeCast S16 (a.view.readAt (Elt F) (Rect.unit (s := S8x3200) off3 S1x16.size p3).toLoadRect ga) shapeCasts_S1x16_S16⟩]) (t + 1) := by
  intro r hr hlt
  by_cases hlo : r < 16 * t
  · refine (View.read_writes_cons_unit_of_not_mem b.view gb p4 _ [] _ h4 (0 : Fin 1) (Or.inl ?_)).trans (h r hr hlo)
    show r < 16 * t
    exact hlo
  · have hx : r - 16 * t < 16 := by omega
    refine (View.read_writes_cons_unit_of_mem b.view gb p4 _ [] _ (ix1 (⟨r - 16 * t, hx⟩ : Fin 16)) h4 ?_).trans ?_
    · intro a'
      match a' with
      | ⟨0, _⟩ => show r = 16 * t + (r - 16 * t); omega
    · rw [shapeCast_1a_a_apply, View.readAt_apply, idx_window h3 p3 ⟨r - 16 * t, hx⟩ (by show 16 * t + (r - 16 * t) < 3200; omega)]
      congr 2
      apply Fin.ext
      show 16 * t + (r - 16 * t) = r
      omega

theorem lanes_step (a : Memref sig .scVector .vmem S8x3200 .f32) (b : Memref sig .scVector .vmem S25600 .f32)
    (ga : Buf (Elt F) (a.view.loc (thr d L))) (gb : Buf (Elt F) (b.view.loc (thr d L)))
    (j : Fin k1_t2_loop.trips) (p3 : ∀ a', (k1_off3 j) a' + S1x16.size a' ≤ S8x3200.size a')
    (p4 : ∀ a', (k1_off4 j) a' + S16.size a' ≤ S25600.size a') (h : Lanes d L a b ga gb j.val) :
    Lanes d L a b ga (b.view.writes (Elt F) gb [⟨Rect.unit (s := S25600) (k1_off4 j) S16.size p4,
      k1_pay1 (a.view.readAt (Elt F) (Rect.unit (s := S8x3200) (k1_off3 j) S1x16.size p3).toLoadRect ga)⟩]) (j.val + 1) :=
  lanes_step_core d L a b ga gb j.val (k1_off3_eq j) (k1_off4_eq j) p3 p4 h

theorem lanes_step' (a : Memref sig .scVector .vmem S8x3200 .f32) (b : Memref sig .scVector .vmem S25600 .f32)
    (ga : Buf (Elt F) (a.view.loc (thr d L))) (gb : Buf (Elt F) (b.view.loc (thr d L)))
    (j : Fin k1_t3_loop.trips) (p3 : ∀ a', (k1_off8 j) a' + S1x16.size a' ≤ S8x3200.size a')
    (p4 : ∀ a', (k1_off9 j) a' + S16.size a' ≤ S25600.size a') (h : Lanes d L a b ga gb j.val) :
    Lanes d L a b ga (b.view.writes (Elt F) gb [⟨Rect.unit (s := S25600) (k1_off9 j) S16.size p4,
      k1_pay2 (a.view.readAt (Elt F) (Rect.unit (s := S8x3200) (k1_off8 j) S1x16.size p3).toLoadRect ga)⟩]) (j.val + 1) :=
  lanes_step_core d L a b ga gb j.val (k1_off8_eq j) (k1_off9_eq j) p3 p4 h

/-- Position `y` of the write-out window of the flat staging array is its element `y 0`. -/
theorem stg_emb (y : S3200.Idx) (hy : (y 0).val < 25600) :
    (Rect.unit (s := S25600) ![0] S3200.size inb_S25600_S3200_0).emb y = ix1 (⟨(y 0).val, hy⟩ : Fin 25600) := by
  funext a'; apply Fin.ext
  match a' with
  | ⟨0, _⟩ => show 0 + 1 * (y 0).val = (y 0).val; omega

/-- Position `(0, t)` of row 0 of the staging array is its element `(0, t)`. -/
theorem row_emb (t : Fin 3200) : rowRect.emb (ix2 (0 : Fin 1) t) = ix2 (0 : Fin 8) t := by
  funext a'; apply Fin.ext
  match a' with
  | ⟨0, _⟩ => show 0 + 1 * 0 = 0; omega
  | ⟨1, _⟩ => show 0 + 1 * t.val = t.val; omega

/-- Position `(0, t)` of piece `n` of the argument row is element `(0, pos + t)` of the transposed argument;
    position `y` of piece `n` of the result is element `pos + y 0` of the result. -/
theorem in_emb (n : ℕ) (t : Fin 3200) (h : pos L n + t.val < 1600000) :
    (inM L n).view.emb (ix2 (0 : Fin 1) t) = ix2 (1 : Fin 22) (⟨pos L n + t.val, h⟩ : Fin 1600000) := by
  funext a'; apply Fin.ext
  match a' with
  | ⟨0, _⟩ => show 1 + 1 * 0 = 1; omega
  | ⟨1, _⟩ => show pos L n + 1 * t.val = pos L n + t.val; omega

theorem out_emb (n : ℕ) (y : S3200.Idx) (h : pos L n + (y 0).val < 1600000) :
    (outM L n).view.emb y = ix1 (⟨pos L n + (y 0).val, h⟩ : Fin 1600000) := by
  funext a'; apply Fin.ext
  match a' with
  | ⟨0, _⟩ => show pos L n + 1 * (y 0).val = pos L n + (y 0).val; omega

/-- Both lane-copy loops run 200 trips: 200 · 16 = 3200, the whole row. -/
theorem trips2 : k1_t2_loop.trips = 200 := by decide
theorem trips3 : k1_t3_loop.trips = 200 := by decide

/-- After all its trips a lane-copy loop has copied the whole row. -/
theorem lanes_all (a : Memref sig .scVector .vmem S8x3200 .f32) (b : Memref sig .scVector .vmem S25600 .f32)
    (ga : Buf (Elt F) (a.view.loc (thr d L))) (gb : Buf (Elt F) (b.view.loc (thr d L)))
    (h : Lanes d L a b ga gb k1_t2_loop.trips) : Lanes d L a b ga gb 200 := trips2 ▸ h
theorem lanes_all' (a : Memref sig .scVector .vmem S8x3200 .f32) (b : Memref sig .scVector .vmem S25600 .f32)
    (ga : Buf (Elt F) (a.view.loc (thr d L))) (gb : Buf (Elt F) (b.view.loc (thr d L)))
    (h : Lanes d L a b ga gb k1_t3_loop.trips) : Lanes d L a b ga gb 200 := trips3 ▸ h

/-- The write-out of a piece: the first 3200 elements of the flat staging array, which the 200 lane copies filled from
    row 0 of the staging array, which the fetch filled from piece `n` of row 1 of the transposed argument, land at
    piece `n` of the result, at the same positions of the row. -/
theorem out_written (a : Memref sig .scVector .vmem S8x3200 .f32) (b : Memref sig .scVector .vmem S25600 .f32) (n : ℕ)
    (ga : Buf (Elt F) (a.view.loc (thr d L))) (gb : Buf (Elt F) (b.view.loc (thr d L)))
    (f0 : Buf (Elt F) ((outM L n).view.loc (thr d L))) (w : S3200.Idx → Elt F .f32)
    (hw : ∀ y, w y = (stg b).view.read (Elt F) gb y) (hl : Lanes d L a b ga gb 200) (hr : InRow d L fx a ga n) (hv : valid L n) :
    ∀ i ∈ (outM L n).view.set, ((outM L n).view.writes (Elt F) f0 [⟨Rect.whole _, w⟩]) i = Cert.Spec.row 1 fx i := by
  intro i hi
  obtain ⟨y, -, rfl⟩ := Finset.mem_map.mp hi
  have hy : (y 0).val < 3200 := (y 0).isLt
  have hp : pos L n + (y 0).val < 1600000 := by unfold pos; omega
  have e1 : (outM L n).view.writes (Elt F) f0 [⟨Rect.whole _, w⟩] ((outM L n).view.emb y) = w y := by
    have h := View.read_writes_cons_emb (outM L n).view f0 (Rect.whole _) w [] y
    rw [Rect.emb_whole_apply] at h
    exact (cast_eq _ _).symm.trans ((View.read_apply _ _).symm.trans h)
  have e2 : (stg b).view.read (Elt F) gb y = b.view.read (Elt F) gb (ix1 (⟨(y 0).val, by omega⟩ : Fin 25600)) :=
    congrArg (b.view.read (Elt F) gb) (stg_emb y (by omega))
  have e3 : a.view.read (Elt F) ga (ix2 (0 : Fin 8) (⟨(y 0).val, hy⟩ : Fin 3200))
      = (inM L n).view.read (Elt F) fx (ix2 (0 : Fin 1) (⟨(y 0).val, hy⟩ : Fin 3200)) :=
    (congrArg (a.view.read (Elt F) ga) (row_emb ⟨(y 0).val, hy⟩).symm).trans (hr _)
  have e4 : (inM L n).view.read (Elt F) fx (ix2 (0 : Fin 1) (⟨(y 0).val, hy⟩ : Fin 3200))
      = fx (ix2 (1 : Fin 22) (⟨pos L n + (y 0).val, hp⟩ : Fin 1600000)) :=
    ((View.read_apply _ _).trans (cast_eq _ _)).trans (congrArg fx (in_emb L n ⟨(y 0).val, hy⟩ hp))
  have e5 : Cert.Spec.row 1 fx ((outM L n).view.emb y) = fx (ix2 (1 : Fin 22) (⟨pos L n + (y 0).val, hp⟩ : Fin 1600000)) :=
    (congrArg (Cert.Spec.row 1 fx) (out_emb L n y hp)).trans (Cert.Spec.row_apply 1 fx _)
  exact e1.trans ((hw y).trans (e2.trans ((hl _ hy (by omega)).trans (e3.trans (e4.trans e5.symm)))))

end Cert.Proof.TileBVal1

end
-- ==== Proof.TileB1.lean ====
/-
  One vector subcore's task of copy kernel 1 (counting from 0), run symbolically: the two fetch slots and two write-out slots
  between trips of the main loop (what each transfer in flight will hand back, and what the staging buffers hold), the
  invariant of the main loop and of the two lane-copy loops, and the task's run — from the tile's pieces of row 1 of
  the transposed argument and of the result to the same pieces with the result holding the row's elements.
-/
import proofs.«206869_g37898791420194_cont_8to1_b_558_20_alg».proof.Proof.TileB1Defs
import proofs.«206869_g37898791420194_cont_8to1_b_558_20_alg».proof.Proof.TileBVal1
noncomputable section

namespace Cert.Proof.TileB1

open Cert.Kernel Cert.Kernel.Gen Cert.Proof.TileBVal1
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 22) (Elt F) ℕ UU ℕ
local notation "xtW" => (Memref.whole Cert.Kernel.main_v0_scv : Memref Cert.Kernel.sig Kind.scVector Space.hbm Cert.Kernel.S22x1600000 EltTy.f32)
local notation "oW" => (Memref.whole Cert.Kernel.main_v2_scv : Memref Cert.Kernel.sig Kind.scVector Space.hbm Cert.Kernel.S1600000 EltTy.f32)
local notation "a4" => (Memref.whole Cert.Kernel.cc1_scratch0 : Memref Cert.Kernel.sig Kind.scVector Space.vmem Cert.Kernel.S8x3200 EltTy.f32)
local notation "a5" => (Memref.whole Cert.Kernel.cc1_scratch1 : Memref Cert.Kernel.sig Kind.scVector Space.vmem Cert.Kernel.S8x3200 EltTy.f32)
local notation "a6" => (Memref.whole Cert.Kernel.cc1_scratch2 : Memref Cert.Kernel.sig Kind.scVector Space.vmem Cert.Kernel.S25600 EltTy.f32)
local notation "a7" => (Memref.whole Cert.Kernel.cc1_scratch3 : Memref Cert.Kernel.sig Kind.scVector Space.vmem Cert.Kernel.S25600 EltTy.f32)

variable [FloatOps F]

section Tile

variable (d : Dev nD) (L : grid1.Coords)
variable (O : CellTallies nD τ sig (HIx 22)) (W : Waits sig (HIx 22))
variable (fx : Buf (Elt F) ((xtW).view.loc (thr d L)))

/-- Piece `n` of the result at its final contents. -/
abbrev oqPiece (n : ℕ) : sProp 𝕄 := (outM L n).view.loc (thr d L) ↦[(outM L n).view.set]{fullShare} (Cert.Spec.row 1 fx)
theorem oQ_pos {n : ℕ} (v : valid L n) : oQ d L fx n = oqPiece d L fx n := if_pos v
theorem oQ_neg {n : ℕ} (v : ¬ valid L n) : oQ d L fx n = iprop(emp) := if_neg v

/-- A fetch slot, remembering that the staging row it will hand back holds the piece. -/
def inSlotV (a : Memref sig .scVector .vmem S8x3200 .f32) (sm : DmaSem sig) (n : ℕ) : sProp 𝕄 :=
  if valid L n then
    iprop(∃ g, ⌜InRow d L fx a g n⌝ ∗ Transfers.Flight countersEmb (thr d L) (SemLoc.dma sm) (default : HIx 22) NN
      iprop((a.view.loc (thr d L) ↦{fullShare} g) ∗ xtPiece d L fx n))
  else iprop((∃ g, a.view.loc (thr d L) ↦{fullShare} g) ∗ semVal (thr d L, SemLoc.dma sm) 0)

/-- A write-out slot: the piece in flight will come back holding the row's elements. -/
def outSlotV (a : Memref sig .scVector .vmem S25600 .f32) (sm : DmaSem sig) (m : ℕ) : sProp 𝕄 :=
  if 2 ≤ m ∧ valid L (m - 2) then
    iprop(∃ g, Transfers.Flight countersEmb (thr d L) (SemLoc.dma sm) (default : HIx 22) NN
        iprop(oqPiece d L fx (m - 2) ∗ ((stg a).view.loc (thr d L) ↦[(stg a).view.set]{fullShare} g))
      ∗ (a.view.loc (thr d L) ↦[Finset.univ \ (stg a).view.set]{fullShare} g))
  else iprop((∃ g, a.view.loc (thr d L) ↦{fullShare} g) ∗ semVal (thr d L, SemLoc.dma sm) 0)

theorem inSlotV_pos {a : Memref sig .scVector .vmem S8x3200 .f32} {sm : DmaSem sig} {n : ℕ} (v : valid L n) :
    inSlotV d L fx a sm n = iprop(∃ g, ⌜InRow d L fx a g n⌝ ∗ Transfers.Flight countersEmb (thr d L) (SemLoc.dma sm) (default : HIx 22) NN
      iprop((a.view.loc (thr d L) ↦{fullShare} g) ∗ xtPiece d L fx n)) := by unfold inSlotV; rw [if_pos v]
theorem inSlotV_neg {a : Memref sig .scVector .vmem S8x3200 .f32} {sm : DmaSem sig} {n : ℕ} (v : ¬ valid L n) :
    inSlotV d L fx a sm n = iprop((∃ g, a.view.loc (thr d L) ↦{fullShare} g) ∗ semVal (thr d L, SemLoc.dma sm) 0) := by
  unfold inSlotV; rw [if_neg v]
theorem outSlotV_pos {a : Memref sig .scVector .vmem S25600 .f32} {sm : DmaSem sig} {m : ℕ} (h : 2 ≤ m ∧ valid L (m - 2)) :
    outSlotV d L fx a sm m = iprop(∃ g, Transfers.Flight countersEmb (thr d L) (SemLoc.dma sm) (default : HIx 22) NN
        iprop(oqPiece d L fx (m - 2) ∗ ((stg a).view.loc (thr d L) ↦[(stg a).view.set]{fullShare} g))
      ∗ (a.view.loc (thr d L) ↦[Finset.univ \ (stg a).view.set]{fullShare} g)) := by unfold outSlotV; rw [if_pos h]
theorem outSlotV_neg {a : Memref sig .scVector .vmem S25600 .f32} {sm : DmaSem sig} {m : ℕ} (h : ¬ (2 ≤ m ∧ valid L (m - 2))) :
    outSlotV d L fx a sm m = iprop((∃ g, a.view.loc (thr d L) ↦{fullShare} g) ∗ semVal (thr d L, SemLoc.dma sm) 0) := by
  unfold outSlotV; rw [if_neg h]

/-- A fetch just issued: the staging row will hold what the transfer reads, which is the piece. -/
theorem fl_inV {off : Fin 2 → ℕ} {n : ℕ} (h : off = ![1, pos L n]) (p : ∀ a, off a + S1x3200.size a ≤ S22x1600000.size a) (v : valid L n)
    (a : Memref sig .scVector .vmem S8x3200 .f32) (sm : DmaSem sig) :
    (iprop(∃ (gold : Buf (Elt F) (a.view.loc (thr d L))) (w : S1x3200.Idx → Elt F .f32),
        ⌜∀ y, w y = ((xtW).slice (Rect.unit (s := S22x1600000) off S1x3200.size p) (fun _ => rfl)).view.read (Elt F) fx y⌝
        ∗ Transfers.Flight countersEmb (thr d L) (SemLoc.dma sm) (default : HIx 22) NN
          iprop((a.view.loc (thr d L) ↦{fullShare} a.view.writes (Elt F) gold [⟨rowRect, w⟩])
            ∗ (((xtW).slice (Rect.unit (s := S22x1600000) off S1x3200.size p) (fun _ => rfl)).view.loc (thr d L)
                ↦[((xtW).slice (Rect.unit (s := S22x1600000) off S1x3200.size p) (fun _ => rfl)).view.set]{fullShare} fx))) : sProp 𝕄)
      ⊢ inSlotV d L fx a sm n := by
  subst h
  rw [inSlotV_pos d L fx v]
  iintro ⟨%gold, %w, %hw, H⟩
  iexists _
  isplitr
  · ipureintro; exact inRow_fetch d L fx a gold w n hw
  · iexact H

set_option maxHeartbeats 4000000 in
/-- A write-out just issued from a flat staging buffer whose first 3200 elements are the staging row, itself piece
    `n` of the argument row: the piece of the result will hold the row's elements. -/
theorem fl_outV {off : Fin 1 → ℕ} {n : ℕ} (h : off = ![pos L n]) (p : ∀ a, off a + S3200.size a ≤ S1600000.size a) (v : valid L n)
    (ar : Memref sig .scVector .vmem S8x3200 .f32) (a : Memref sig .scVector .vmem S25600 .f32) (sm : DmaSem sig)
    (f0 : Buf (Elt F) ((oW).view.loc (thr d L))) (ga : Buf (Elt F) (ar.view.loc (thr d L))) (gb : Buf (Elt F) (a.view.loc (thr d L)))
    (hl : Lanes d L ar a ga gb 200) (hr : InRow d L fx ar ga n) :
    (iprop(∃ (w : S3200.Idx → Elt F .f32),
        ⌜∀ y, w y = (stg a).view.read (Elt F) gb y⌝
        ∗ Transfers.Flight countersEmb (thr d L) (SemLoc.dma sm) (default : HIx 22) NN
          iprop((((oW).slice (Rect.unit (s := S1600000) off S3200.size p) (fun _ => rfl)).view.loc (thr d L)
                ↦[((oW).slice (Rect.unit (s := S1600000) off S3200.size p) (fun _ => rfl)).view.set]{fullShare}
                  (((oW).slice (Rect.unit (s := S1600000) off S3200.size p) (fun _ => rfl)).view.writes (Elt F) f0 [⟨Rect.whole _, w⟩]))
            ∗ ((stg a).view.loc (thr d L) ↦[(stg a).view.set]{fullShare} gb))
        ∗ (a.view.loc (thr d L) ↦[Finset.univ \ (stg a).view.set]{fullShare} gb)) : sProp 𝕄)
      ⊢ outSlotV d L fx a sm (n + 2) := by
  subst h
  rw [outSlotV_pos d L fx (m := n + 2) ⟨by omega, by simpa using v⟩]
  iintro ⟨%w, %hw, H, R⟩
  have hD : (iprop(((outM L n).view.loc (thr d L) ↦[(outM L n).view.set]{fullShare} ((outM L n).view.writes (Elt F) f0 [⟨Rect.whole _, w⟩]))
          ∗ ((stg a).view.loc (thr d L) ↦[(stg a).view.set]{fullShare} gb)) : sProp 𝕄)
      ⊢ iprop(oqPiece d L fx (n + 2 - 2) ∗ ((stg a).view.loc (thr d L) ↦[(stg a).view.set]{fullShare} gb)) := by
    rw [Nat.add_sub_cancel]
    have e : (((outM L n).view.loc (thr d L) ↦[(outM L n).view.set]{fullShare} ((outM L n).view.writes (Elt F) f0 [⟨Rect.whole _, w⟩])) : sProp 𝕄)
        = oqPiece d L fx n := pointsTo_congr (out_written d L fx ar a n ga gb f0 w hw hl hr v)
    iintro ⟨H1, H2⟩
    isplitl [H1]
    · iapply (Entails.of_eq e); iexact H1
    · iexact H2
  iexists gb
  isplitl [H]
  · iapply (Transfers.Flight_mono countersEmb (thr d L) hD); iexact H
  · iexact R

/-- The result pieces outside the slots before trip `t`: those already written hold the row, the others some contents. -/
def oMix (t n : ℕ) : sProp 𝕄 := if n + 2 < 2 * t then oQ d L fx n else oP (F := F) d L n
theorem oMix_lt {t n : ℕ} (h : n + 2 < 2 * t) : oMix d L fx t n = oQ d L fx n := if_pos h
theorem oMix_ge {t n : ℕ} (h : ¬ n + 2 < 2 * t) : oMix d L fx t n = oP (F := F) d L n := if_neg h
theorem oMix_core (k : ℕ) : bigSep (oCore k) (oMix d L fx k) = bigSep (oCore k) (oMix d L fx (k + 1)) :=
  bigSep_congr fun n hn => by
    have hn' : n + 2 ≠ 2 * k ∧ n + 2 ≠ 2 * k + 1 ∧ n ≠ 2 * k ∧ n ≠ 2 * k + 1 := by
      simp only [oCore, Finset.mem_filter, Finset.mem_range] at hn; exact hn.2
    by_cases h : n + 2 < 2 * k
    · rw [oMix_lt d L fx h, oMix_lt d L fx (by omega)]
    · rw [oMix_ge d L fx h, oMix_ge d L fx (by omega)]
theorem oMix_zero : bigSep (oSet 0) (oMix d L fx 0) = bigSep (Finset.range 18) (oP (F := F) d L) := by
  rw [oSet_zero]; exact bigSep_congr fun n _ => oMix_ge d L fx (by omega)
theorem oMix_end : bigSep (oSet 8) (oMix d L fx 8) = bigSep (oSet 8) (oQ d L fx) :=
  bigSep_congr fun n hn => by
    have hn' : n < 18 ∧ n + 2 ≠ 16 ∧ n + 2 ≠ 17 := by simpa only [oSet, Finset.mem_filter, Finset.mem_range] using hn
    by_cases h : n + 2 < 2 * 8
    · exact oMix_lt d L fx h
    · rw [oMix_ge d L fx h, oP_neg (F := F) d L (by unfold valid; omega), oQ_neg d L fx (by unfold valid; omega)]

/-- The lane-copy loops: before trip `j` the first 16·j elements of the flat staging buffer are the staging row's. -/
def laneV0 (g4 : Buf (Elt F) ((a4).view.loc (thr d L))) (j : ℕ) (_ : PUnit) : sProp 𝕄 :=
  iprop(((a4).view.loc (thr d L) ↦{fullShare} g4) ∗ (∃ g, ((a6).view.loc (thr d L) ↦{fullShare} g) ∗ ⌜Lanes d L a4 a6 g4 g j⌝))
def laneV1 (g5 : Buf (Elt F) ((a5).view.loc (thr d L))) (j : ℕ) (_ : PUnit) : sProp 𝕄 :=
  iprop(((a5).view.loc (thr d L) ↦{fullShare} g5) ∗ (∃ g, ((a7).view.loc (thr d L) ↦{fullShare} g) ∗ ⌜Lanes d L a5 a7 g5 g j⌝))

def invV (t : ℕ) (_ : PUnit) : sProp 𝕄 :=
  iprop(Transfers.MayWaits (thr d L) (none : HIx 22) O
    ∗ (∃ W', ⌜∀ p ∈ W', p ∈ W ∨ p.2 = none⌝ ∗ owes (thr d L) O W')
    ∗ bigSep (xSet t) (xP d L fx) ∗ bigSep (oSet t) (oMix d L fx t)
    ∗ inSlotV d L fx a4 cc1_scratch4.sem (2 * t) ∗ outSlotV d L fx a6 cc1_scratch6.sem (2 * t)
    ∗ inSlotV d L fx a5 cc1_scratch5.sem (2 * t + 1) ∗ outSlotV d L fx a7 cc1_scratch7.sem (2 * t + 1))

/-- After the last trip nothing of the argument row is in a slot: the tile holds all its pieces. -/
theorem xRange_end : bigSep (xSet 8) (xP d L fx) ⊢ bigSep (Finset.range 18) (xP d L fx) := by
  rw [two_out (s := Finset.range 18) (a := 16) (b := 17) (by decide) (by decide) (by decide),
    show ((Finset.range 18).erase 16).erase 17 = xSet 8 by decide]
  iintro H
  isplitr; · iapply (Entails.of_eq (xP_neg d L fx (n := 16) (by unfold valid; omega)).symm); iempintro
  isplitr; · iapply (Entails.of_eq (xP_neg d L fx (n := 17) (by unfold valid; omega)).symm); iempintro
  iexact H
omit [FloatOps F] in
theorem oRange_end (Φ : ℕ → sProp 𝕄) : bigSep (Finset.range 18) Φ = iprop(Φ 14 ∗ Φ 15 ∗ bigSep (oSet 8) Φ) := by
  rw [two_out (s := Finset.range 18) (a := 14) (b := 15) (by decide) (by decide) (by decide),
    show ((Finset.range 18).erase 14).erase 15 = oSet 8 by decide]

/-- What the run starts from and ends with, beside an untouched rest `R`. -/
def runPre (R : sProp 𝕄) : sProp 𝕄 :=
    iprop(Transfers.MayWaits (thr d L) (none : HIx 22) O ∗ owes (thr d L) O W
        ∗ bigSep (Finset.range 18) (xP d L fx) ∗ bigSep (Finset.range 18) (oP (F := F) d L)
        ∗ (∃ g, (a4).view.loc (thr d L) ↦{fullShare} g) ∗ (∃ g, (a5).view.loc (thr d L) ↦{fullShare} g)
        ∗ (∃ g, (a6).view.loc (thr d L) ↦{fullShare} g) ∗ (∃ g, (a7).view.loc (thr d L) ↦{fullShare} g)
        ∗ semVal (thr d L, SemLoc.dma cc1_scratch4.sem) 0 ∗ semVal (thr d L, SemLoc.dma cc1_scratch5.sem) 0
        ∗ semVal (thr d L, SemLoc.dma cc1_scratch6.sem) 0 ∗ semVal (thr d L, SemLoc.dma cc1_scratch7.sem) 0 ∗ R)
def runPost (R : sProp 𝕄) : sProp 𝕄 :=
    iprop(bigSep (Finset.range 18) (xP d L fx) ∗ bigSep (Finset.range 18) (oQ d L fx)
            ∗ (∃ g, (a4).view.loc (thr d L) ↦{fullShare} g) ∗ (∃ g, (a5).view.loc (thr d L) ↦{fullShare} g)
            ∗ (∃ g, (a6).view.loc (thr d L) ↦{fullShare} g) ∗ (∃ g, (a7).view.loc (thr d L) ↦{fullShare} g)
            ∗ semVal (thr d L, SemLoc.dma cc1_scratch4.sem) 0 ∗ semVal (thr d L, SemLoc.dma cc1_scratch5.sem) 0
            ∗ semVal (thr d L, SemLoc.dma cc1_scratch6.sem) 0 ∗ semVal (thr d L, SemLoc.dma cc1_scratch7.sem) 0
            ∗ (∃ W', ⌜∀ p ∈ W', p ∈ W ∨ p.2 = none⌝ ∗ owes (thr d L) O W') ∗ R)

set_option maxHeartbeats 16000000 in
/-- The task's run: from its pieces of the argument row and of the result, the four staging buffers and the four
    semaphores at zero, to the same with every piece of the result holding the row's elements. -/
theorem tile_run (R : sProp 𝕄) :
    runPre d L O W fx R
      ⊢ wp frame (wpE (defs₀ (F := F)) 𝒱₀ (thr d L) none) Set.univ
          (cc1_sc_group L xtW (Memref.isWhole_whole _) oW (Memref.isWhole_whole _) a4 (Memref.isWhole_whole _) a5 (Memref.isWhole_whole _)
            a6 (Memref.isWhole_whole _) a7 (Memref.isWhole_whole _) cc1_scratch4 cc1_scratch5 cc1_scratch6 cc1_scratch7)
          fun _ => runPost d L O W fx R := by
  unfold runPre runPost
  have v0 : valid L 0 := Or.inl (by omega)
  have v1 : valid L 1 := Or.inl (by omega)
  have k1_h7 : k1_cond7 L = 1#1 := cond7_iff L
  iintro ⟨#Hmw, HO, HX, HOut, ⟨%g4, H4⟩, ⟨%g5, H5⟩, ⟨%g6, H6⟩, ⟨%g7, H7⟩, Hs8, Hs9, Hs10, Hs11, HR⟩
  ihave HX := (Entails.of_eq (xRange_split d L fx v0 v1)) $$ HX
  icases HX with ⟨X0, X1, HX⟩
  ihave X0 := (Entails.of_eq (in_congr d L (off_in0 L v0).symm (in_inb L _) (k1_off1_inb L 0) fx)) $$ X0
  ihave X1 := (Entails.of_eq (in_congr d L (off_in1 L v1).symm (in_inb L _) (k1_off1_inb L 1) fx)) $$ X1
  sl_unfold [cc1_sc_group]
  sl_exec
  ihave S8 := (fl_inV d L fx (off_in0 L v0) (k1_off1_inb L 0) v0 a4 cc1_scratch4.sem) $$ [Hs8]
  · iexists _, _
    isplitr
    rotate_left
    · iexact Hs8
    ipureintro; intro y; rfl
  ihave S9 := (fl_inV d L fx (off_in1 L v1) (k1_off1_inb L 1) v1 a5 cc1_scratch5.sem) $$ [Hs9]
  · iexists _, _
    isplitr
    rotate_left
    · iexact Hs9
    ipureintro; intro y; rfl
  sl_for (invV d L O W fx) $$ [HO HX HOut S8 S9 H6 H7 Hs10 Hs11]
  case region =>
    intro (k : Fin k1_t1_loop.trips) acc
    have hk : k.val < 8 := Nat.lt_of_lt_of_eq k.isLt trips1
    unfold invV
    iintro ⟨#Hmw, ⟨%W', %hW', HO⟩, HX, HOut, S8, S10, S9, S11⟩
    by_cases hk1 : 1 ≤ k.val
    · by_cases v3 : valid L (2 * k.val + 3)
      · -- the generic trip: both drains, both pieces worked, both next fetches issued
        have hk6 : k.val ≤ 6 := by unfold valid at v3; omega
        have k1_h1 : k1_cond1 k = 1#1 := (cond1_iff k).mpr (by omega)
        have k1_h2 : k1_cond2 L k = 1#1 := cond2_iff L k
        have k1_h3 : k1_cond3 L k = 1#1 := (cond3_iff L k).mpr (by omega)
        have k1_h4 : k1_cond4 k = 1#1 := (cond4_iff k).mpr (by omega)
        have k1_h5 : k1_cond5 L k = 1#1 := (cond5_iff L k).mpr (by first | (unfold valid big at *; omega) | (unfold big at *; omega) | omega)
        have k1_h6 : k1_cond6 L k = 1#1 := (cond6_iff L k).mpr (by first | (unfold valid big at *; omega) | (unfold big at *; omega) | omega)
        have v0 : valid L (2 * k.val) := by unfold valid big at *; omega
        have v1 : valid L (2 * k.val + 1) := by unfold valid big at *; omega
        have v2 : valid L (2 * k.val + 2) := by unfold valid big at *; omega
        have v3' : valid L (2 * k.val + 3) := by unfold valid big at *; omega
        have hm0 : 2 ≤ 2 * k.val ∧ valid L (2 * k.val - 2) := ⟨by omega, by unfold valid big at *; omega⟩
        have hm1 : 2 ≤ 2 * k.val + 1 ∧ valid L (2 * k.val + 1 - 2) := ⟨by omega, by unfold valid big at *; omega⟩
        ihave S8 := (Entails.of_eq (inSlotV_pos d L fx v0)) $$ S8
        icases S8 with ⟨%g4, %hin4, F8⟩
        ihave S9 := (Entails.of_eq (inSlotV_pos d L fx v1)) $$ S9
        icases S9 with ⟨%g5, %hin5, F9⟩
        ihave S10 := (Entails.of_eq (outSlotV_pos d L fx hm0)) $$ S10
        icases S10 with ⟨%g6, F10, R6⟩
        ihave S11 := (Entails.of_eq (outSlotV_pos d L fx hm1)) $$ S11
        icases S11 with ⟨%g7, F11, R7⟩
        ihave HX := (Entails.of_eq (xSet_out (xP d L fx) k.val hk)) $$ HX
        icases HX with ⟨X2, X3, HX⟩
        ihave X2 := (Entails.of_eq (xP_pos d L fx v2)) $$ X2
        ihave X2 := (Entails.of_eq (in_congr d L (off_6 L k v2).symm (in_inb L _) (k1_off6_inb L k k1_h3) fx)) $$ X2
        ihave X3 := (Entails.of_eq (xP_pos d L fx v3')) $$ X3
        ihave X3 := (Entails.of_eq (in_congr d L (off_11 L k v3').symm (in_inb L _) (k1_off11_inb L k k1_h6) fx)) $$ X3
        ihave HOut := (Entails.of_eq (oSet_out (oMix d L fx k.val) k.val hk)) $$ HOut
        icases HOut with ⟨Y0, Y1, HOut⟩
        ihave Y0 := (Entails.of_eq ((oMix_ge d L fx (t := k.val) (n := 2 * k.val) (by omega)).trans (oP_pos (F := F) d L v0))) $$ Y0
        icases Y0 with ⟨%f0, Y0⟩
        ihave Y0 := (Entails.of_eq (out_congr d L (off_5 L k v0).symm (out_inb L _) (k1_off5_inb L k k1_h2) f0)) $$ Y0
        ihave Y1 := (Entails.of_eq ((oMix_ge d L fx (t := k.val) (n := 2 * k.val + 1) (by omega)).trans (oP_pos (F := F) d L v1))) $$ Y1
        icases Y1 with ⟨%f1, Y1⟩
        ihave Y1 := (Entails.of_eq (out_congr d L (off_10 L k v1).symm (out_inb L _) (k1_off10_inb L k k1_h5) f1)) $$ Y1
        sl_exec
        sl_for (laneV0 d L g4) $$ [F8_dst R6]
        case region =>
          intro (j : Fin k1_t2_loop.trips) _
          unfold laneV0
          iintro ⟨HA, %g, HB, %hl⟩
          sl_exec
          sl_step
          isplitl [HA]; · iexact HA
          iexists _; isplitl [HB]; · iexact HB
          ipureintro; exact lanes_step d L a4 a6 g4 g j _ _ hl
        · unfold laneV0
          isplitl [F8_dst]; · iexact F8_dst
          iexists _; isplitl [R6]; · iexact R6
          ipureintro; exact lanes_zero d L a4 a6 g4 _
        iintro %_ HI
        unfold laneV0
        icases HI with ⟨H4, %g6', H6, %hl6⟩
        have hl6 : Lanes d L a4 a6 g4 g6' 200 := Eq.mp (congrArg (Lanes d L a4 a6 g4 g6') trips2) hl6
        sl_exec
        sl_for (laneV1 d L g5) $$ [F9_dst R7]
        case region =>
          intro (j : Fin k1_t3_loop.trips) _
          unfold laneV1
          iintro ⟨HA, %g, HB, %hl⟩
          sl_exec
          sl_step
          isplitl [HA]; · iexact HA
          iexists _; isplitl [HB]; · iexact HB
          ipureintro; exact lanes_step' d L a5 a7 g5 g j _ _ hl
        · unfold laneV1
          isplitl [F9_dst]; · iexact F9_dst
          iexists _; isplitl [R7]; · iexact R7
          ipureintro; exact lanes_zero d L a5 a7 g5 _
        iintro %_ HI
        unfold laneV1
        icases HI with ⟨H5, %g7', H7, %hl7⟩
        have hl7 : Lanes d L a5 a7 g5 g7' 200 := Eq.mp (congrArg (Lanes d L a5 a7 g5 g7') trips3) hl7
        sl_exec
        sl_step
        isplitr; · iexact Hmw
        isplitl [HO]
        · iexists _; isplitr
          rotate_left
          · iexact HO
          ipureintro; intro p hp
          rcases Finset.mem_insert.mp hp with rfl | hp
          · exact .inr rfl
          rcases Finset.mem_insert.mp hp with rfl | hp
          · exact .inr rfl
          rcases Finset.mem_insert.mp hp with rfl | hp
          · exact .inr rfl
          rcases Finset.mem_insert.mp hp with rfl | hp
          · exact .inr rfl
          exact hW' p hp
        isplitl [HX F8_src F9_src]
        · iapply (Entails.of_eq (xSet_in (xP d L fx) k.val hk).symm)
          isplitl [F8_src]; · iapply (Entails.of_eq (xP_pos d L fx v0).symm); iexact F8_src
          isplitl [F9_src]; · iapply (Entails.of_eq (xP_pos d L fx v1).symm); iexact F9_src
          iexact HX
        isplitl [HOut F10_dst F11_dst]
        · iapply (Entails.of_eq (oSet_in (oMix d L fx (k.val + 1)) k.val hk (by omega)).symm)
          isplitl [F10_dst]; · iapply (Entails.of_eq ((oMix_lt d L fx (t := k.val + 1) (n := 2 * k.val - 2) (by omega)).trans (oQ_pos d L fx hm0.2)).symm); iexact F10_dst
          isplitl [F11_dst]
          · iapply (Entails.of_eq ((oMix_lt d L fx (t := k.val + 1) (n := 2 * k.val - 1) (by omega)).trans (oQ_pos d L fx (n := 2 * k.val - 1) (by have := hm1.2; rwa [show 2 * k.val + 1 - 2 = 2 * k.val - 1 by omega] at this))).symm)
            iapply (Entails.of_eq (congrArg (oqPiece d L fx) (show 2 * k.val + 1 - 2 = 2 * k.val - 1 by omega))); iexact F11_dst
          iapply (Entails.of_eq (oMix_core d L fx k.val)); iexact HOut
        isplitl [F8]
        · iapply (Entails.of_eq (congrArg (inSlotV d L fx a4 cc1_scratch4.sem) (show 2 * k.val + 2 = 2 * (k.val + 1) by ring)))
          iapply (fl_inV d L fx (off_6 L k v2) (k1_off6_inb L k k1_h3) v2 a4 cc1_scratch4.sem); iexists _, _
          isplitr
          rotate_left
          · iexact F8
          ipureintro; intro y; rfl
        isplitl [F10 H6]
        · iapply (Entails.of_eq (congrArg (outSlotV d L fx a6 cc1_scratch6.sem) (show 2 * k.val + 2 = 2 * (k.val + 1) by ring)))
          iapply (fl_outV d L fx (off_5 L k v0) (k1_off5_inb L k k1_h2) v0 a4 a6 cc1_scratch6.sem f0 g4 g6' hl6 hin4); iexists _
          isplitr
          rotate_left
          · isplitl [F10]; · iexact F10
            iexact H6
          ipureintro; intro y; rfl
        isplitl [F9]
        · iapply (Entails.of_eq (congrArg (inSlotV d L fx a5 cc1_scratch5.sem) (show 2 * k.val + 3 = 2 * (k.val + 1) + 1 by ring)))
          iapply (fl_inV d L fx (off_11 L k v3') (k1_off11_inb L k k1_h6) v3' a5 cc1_scratch5.sem); iexists _, _
          isplitr
          rotate_left
          · iexact F9
          ipureintro; intro y; rfl
        · iapply (Entails.of_eq (congrArg (outSlotV d L fx a7 cc1_scratch7.sem) (show 2 * k.val + 1 + 2 = 2 * (k.val + 1) + 1 by ring)))
          iapply (fl_outV d L fx (off_10 L k v1) (k1_off10_inb L k k1_h5) v1 a5 a7 cc1_scratch7.sem f1 g5 g7' hl7 hin5); iexists _
          isplitr
          rotate_left
          · isplitl [F11]; · iexact F11
            iexact H7
          ipureintro; intro y; rfl
      · by_cases h6 : k.val = 6
        · have hb : ¬ big L := fun hb => v3 (Or.inr ⟨by omega, hb⟩)
          -- trip 6 of a tile with fifteen pieces: no sixteenth piece to fetch
          have k1_h1 : k1_cond1 k = 1#1 := (cond1_iff k).mpr (by omega)
          have k1_h2 : k1_cond2 L k = 1#1 := cond2_iff L k
          have k1_h3 : k1_cond3 L k = 1#1 := (cond3_iff L k).mpr (by omega)
          have k1_h4 : k1_cond4 k = 1#1 := (cond4_iff k).mpr (by omega)
          have k1_h5 : k1_cond5 L k = 1#1 := (cond5_iff L k).mpr (by first | (unfold valid big at *; omega) | (unfold big at *; omega) | omega)
          have k1_h6 : ¬ k1_cond6 L k = 1#1 := fun h => absurd ((cond6_iff L k).mp h) (by first | (unfold valid big at *; omega) | (unfold big at *; omega) | omega)
          have v0 : valid L (2 * k.val) := by unfold valid big at *; omega
          have v1 : valid L (2 * k.val + 1) := by unfold valid big at *; omega
          have v2 : valid L (2 * k.val + 2) := by unfold valid big at *; omega
          have v3' : ¬ valid L (2 * k.val + 3) := by unfold valid big at *; omega
          have hm0 : 2 ≤ 2 * k.val ∧ valid L (2 * k.val - 2) := ⟨by omega, by unfold valid big at *; omega⟩
          have hm1 : 2 ≤ 2 * k.val + 1 ∧ valid L (2 * k.val + 1 - 2) := ⟨by omega, by unfold valid big at *; omega⟩
          ihave S8 := (Entails.of_eq (inSlotV_pos d L fx v0)) $$ S8
          icases S8 with ⟨%g4, %hin4, F8⟩
          ihave S9 := (Entails.of_eq (inSlotV_pos d L fx v1)) $$ S9
          icases S9 with ⟨%g5, %hin5, F9⟩
          ihave S10 := (Entails.of_eq (outSlotV_pos d L fx hm0)) $$ S10
          icases S10 with ⟨%g6, F10, R6⟩
          ihave S11 := (Entails.of_eq (outSlotV_pos d L fx hm1)) $$ S11
          icases S11 with ⟨%g7, F11, R7⟩
          ihave HX := (Entails.of_eq (xSet_out (xP d L fx) k.val hk)) $$ HX
          icases HX with ⟨X2, -, HX⟩
          ihave X2 := (Entails.of_eq (xP_pos d L fx v2)) $$ X2
          ihave X2 := (Entails.of_eq (in_congr d L (off_6 L k v2).symm (in_inb L _) (k1_off6_inb L k k1_h3) fx)) $$ X2
          ihave HOut := (Entails.of_eq (oSet_out (oMix d L fx k.val) k.val hk)) $$ HOut
          icases HOut with ⟨Y0, Y1, HOut⟩
          ihave Y0 := (Entails.of_eq ((oMix_ge d L fx (t := k.val) (n := 2 * k.val) (by omega)).trans (oP_pos (F := F) d L v0))) $$ Y0
          icases Y0 with ⟨%f0, Y0⟩
          ihave Y0 := (Entails.of_eq (out_congr d L (off_5 L k v0).symm (out_inb L _) (k1_off5_inb L k k1_h2) f0)) $$ Y0
          ihave Y1 := (Entails.of_eq ((oMix_ge d L fx (t := k.val) (n := 2 * k.val + 1) (by omega)).trans (oP_pos (F := F) d L v1))) $$ Y1
          icases Y1 with ⟨%f1, Y1⟩
          ihave Y1 := (Entails.of_eq (out_congr d L (off_10 L k v1).symm (out_inb L _) (k1_off10_inb L k k1_h5) f1)) $$ Y1
          sl_exec
          sl_for (laneV0 d L g4) $$ [F8_dst R6]
          case region =>
            intro (j : Fin k1_t2_loop.trips) _
            unfold laneV0
            iintro ⟨HA, %g, HB, %hl⟩
            sl_exec
            sl_step
            isplitl [HA]; · iexact HA
            iexists _; isplitl [HB]; · iexact HB
            ipureintro; exact lanes_step d L a4 a6 g4 g j _ _ hl
          · unfold laneV0
            isplitl [F8_dst]; · iexact F8_dst
            iexists _; isplitl [R6]; · iexact R6
            ipureintro; exact lanes_zero d L a4 a6 g4 _
          iintro %_ HI
          unfold laneV0
          icases HI with ⟨H4, %g6', H6, %hl6⟩
          have hl6 : Lanes d L a4 a6 g4 g6' 200 := Eq.mp (congrArg (Lanes d L a4 a6 g4 g6') trips2) hl6
          sl_exec
          sl_for (laneV1 d L g5) $$ [F9_dst R7]
          case region =>
            intro (j : Fin k1_t3_loop.trips) _
            unfold laneV1
            iintro ⟨HA, %g, HB, %hl⟩
            sl_exec
            sl_step
            isplitl [HA]; · iexact HA
            iexists _; isplitl [HB]; · iexact HB
            ipureintro; exact lanes_step' d L a5 a7 g5 g j _ _ hl
          · unfold laneV1
            isplitl [F9_dst]; · iexact F9_dst
            iexists _; isplitl [R7]; · iexact R7
            ipureintro; exact lanes_zero d L a5 a7 g5 _
          iintro %_ HI
          unfold laneV1
          icases HI with ⟨H5, %g7', H7, %hl7⟩
          have hl7 : Lanes d L a5 a7 g5 g7' 200 := Eq.mp (congrArg (Lanes d L a5 a7 g5 g7') trips3) hl7
          sl_exec
          sl_step
          isplitr; · iexact Hmw
          isplitl [HO]
          · iexists _; isplitr
            rotate_left
            · iexact HO
            ipureintro; intro p hp
            rcases Finset.mem_insert.mp hp with rfl | hp
            · exact .inr rfl
            rcases Finset.mem_insert.mp hp with rfl | hp
            · exact .inr rfl
            rcases Finset.mem_insert.mp hp with rfl | hp
            · exact .inr rfl
            rcases Finset.mem_insert.mp hp with rfl | hp
            · exact .inr rfl
            exact hW' p hp
          isplitl [HX F8_src F9_src]
          · iapply (Entails.of_eq (xSet_in (xP d L fx) k.val hk).symm)
            isplitl [F8_src]; · iapply (Entails.of_eq (xP_pos d L fx v0).symm); iexact F8_src
            isplitl [F9_src]; · iapply (Entails.of_eq (xP_pos d L fx v1).symm); iexact F9_src
            iexact HX
          isplitl [HOut F10_dst F11_dst]
          · iapply (Entails.of_eq (oSet_in (oMix d L fx (k.val + 1)) k.val hk (by omega)).symm)
            isplitl [F10_dst]; · iapply (Entails.of_eq ((oMix_lt d L fx (t := k.val + 1) (n := 2 * k.val - 2) (by omega)).trans (oQ_pos d L fx hm0.2)).symm); iexact F10_dst
            isplitl [F11_dst]
            · iapply (Entails.of_eq ((oMix_lt d L fx (t := k.val + 1) (n := 2 * k.val - 1) (by omega)).trans (oQ_pos d L fx (n := 2 * k.val - 1) (by have := hm1.2; rwa [show 2 * k.val + 1 - 2 = 2 * k.val - 1 by omega] at this))).symm)
              iapply (Entails.of_eq (congrArg (oqPiece d L fx) (show 2 * k.val + 1 - 2 = 2 * k.val - 1 by omega))); iexact F11_dst
            iapply (Entails.of_eq (oMix_core d L fx k.val)); iexact HOut
          isplitl [F8]
          · iapply (Entails.of_eq (congrArg (inSlotV d L fx a4 cc1_scratch4.sem) (show 2 * k.val + 2 = 2 * (k.val + 1) by ring)))
            iapply (fl_inV d L fx (off_6 L k v2) (k1_off6_inb L k k1_h3) v2 a4 cc1_scratch4.sem); iexists _, _
            isplitr
            rotate_left
            · iexact F8
            ipureintro; intro y; rfl
          isplitl [F10 H6]
          · iapply (Entails.of_eq (congrArg (outSlotV d L fx a6 cc1_scratch6.sem) (show 2 * k.val + 2 = 2 * (k.val + 1) by ring)))
            iapply (fl_outV d L fx (off_5 L k v0) (k1_off5_inb L k k1_h2) v0 a4 a6 cc1_scratch6.sem f0 g4 g6' hl6 hin4); iexists _
            isplitr
            rotate_left
            · isplitl [F10]; · iexact F10
              iexact H6
            ipureintro; intro y; rfl
          isplitl [H5 F9]
          · iapply (Entails.of_eq (congrArg (inSlotV d L fx a5 cc1_scratch5.sem) (show 2 * k.val + 3 = 2 * (k.val + 1) + 1 by ring)))
            iapply (Entails.of_eq (inSlotV_neg d L fx v3').symm)
            isplitl [H5]; · iexists _; iexact H5
            iexact F9
          · iapply (Entails.of_eq (congrArg (outSlotV d L fx a7 cc1_scratch7.sem) (show 2 * k.val + 1 + 2 = 2 * (k.val + 1) + 1 by ring)))
            iapply (fl_outV d L fx (off_10 L k v1) (k1_off10_inb L k k1_h5) v1 a5 a7 cc1_scratch7.sem f1 g5 g7' hl7 hin5); iexists _
            isplitr
            rotate_left
            · isplitl [F11]; · iexact F11
              iexact H7
            ipureintro; intro y; rfl
        · have h7 : k.val = 7 := by unfold valid at v3; omega
          by_cases hb : big L
          · -- the last trip of a tile with sixteen pieces: nothing more to fetch
            have k1_h1 : k1_cond1 k = 1#1 := (cond1_iff k).mpr (by omega)
            have k1_h2 : k1_cond2 L k = 1#1 := cond2_iff L k
            have k1_h3 : ¬ k1_cond3 L k = 1#1 := fun h => absurd ((cond3_iff L k).mp h) (by omega)
            have k1_h4 : k1_cond4 k = 1#1 := (cond4_iff k).mpr (by omega)
            have k1_h5 : k1_cond5 L k = 1#1 := (cond5_iff L k).mpr (by first | (unfold valid big at *; omega) | (unfold big at *; omega) | omega)
            have k1_h6 : ¬ k1_cond6 L k = 1#1 := fun h => absurd ((cond6_iff L k).mp h) (by first | (unfold valid big at *; omega) | (unfold big at *; omega) | omega)
            have v0 : valid L (2 * k.val) := by unfold valid big at *; omega
            have v1 : valid L (2 * k.val + 1) := by unfold valid big at *; omega
            have v2 : ¬ valid L (2 * k.val + 2) := by unfold valid big at *; omega
            have v3' : ¬ valid L (2 * k.val + 3) := by unfold valid big at *; omega
            have hm0 : 2 ≤ 2 * k.val ∧ valid L (2 * k.val - 2) := ⟨by omega, by unfold valid big at *; omega⟩
            have hm1 : 2 ≤ 2 * k.val + 1 ∧ valid L (2 * k.val + 1 - 2) := ⟨by omega, by unfold valid big at *; omega⟩
            ihave S8 := (Entails.of_eq (inSlotV_pos d L fx v0)) $$ S8
            icases S8 with ⟨%g4, %hin4, F8⟩
            ihave S9 := (Entails.of_eq (inSlotV_pos d L fx v1)) $$ S9
            icases S9 with ⟨%g5, %hin5, F9⟩
            ihave S10 := (Entails.of_eq (outSlotV_pos d L fx hm0)) $$ S10
            icases S10 with ⟨%g6, F10, R6⟩
            ihave S11 := (Entails.of_eq (outSlotV_pos d L fx hm1)) $$ S11
            icases S11 with ⟨%g7, F11, R7⟩
            ihave HX := (Entails.of_eq (xSet_out (xP d L fx) k.val hk)) $$ HX
            icases HX with ⟨-, -, HX⟩
            ihave HOut := (Entails.of_eq (oSet_out (oMix d L fx k.val) k.val hk)) $$ HOut
            icases HOut with ⟨Y0, Y1, HOut⟩
            ihave Y0 := (Entails.of_eq ((oMix_ge d L fx (t := k.val) (n := 2 * k.val) (by omega)).trans (oP_pos (F := F) d L v0))) $$ Y0
            icases Y0 with ⟨%f0, Y0⟩
            ihave Y0 := (Entails.of_eq (out_congr d L (off_5 L k v0).symm (out_inb L _) (k1_off5_inb L k k1_h2) f0)) $$ Y0
            ihave Y1 := (Entails.of_eq ((oMix_ge d L fx (t := k.val) (n := 2 * k.val + 1) (by omega)).trans (oP_pos (F := F) d L v1))) $$ Y1
            icases Y1 with ⟨%f1, Y1⟩
            ihave Y1 := (Entails.of_eq (out_congr d L (off_10 L k v1).symm (out_inb L _) (k1_off10_inb L k k1_h5) f1)) $$ Y1
            sl_exec
            sl_for (laneV0 d L g4) $$ [F8_dst R6]
            case region =>
              intro (j : Fin k1_t2_loop.trips) _
              unfold laneV0
              iintro ⟨HA, %g, HB, %hl⟩
              sl_exec
              sl_step
              isplitl [HA]; · iexact HA
              iexists _; isplitl [HB]; · iexact HB
              ipureintro; exact lanes_step d L a4 a6 g4 g j _ _ hl
            · unfold laneV0
              isplitl [F8_dst]; · iexact F8_dst
              iexists _; isplitl [R6]; · iexact R6
              ipureintro; exact lanes_zero d L a4 a6 g4 _
            iintro %_ HI
            unfold laneV0
            icases HI with ⟨H4, %g6', H6, %hl6⟩
            have hl6 : Lanes d L a4 a6 g4 g6' 200 := Eq.mp (congrArg (Lanes d L a4 a6 g4 g6') trips2) hl6
            sl_exec
            sl_for (laneV1 d L g5) $$ [F9_dst R7]
            case region =>
              intro (j : Fin k1_t3_loop.trips) _
              unfold laneV1
              iintro ⟨HA, %g, HB, %hl⟩
              sl_exec
              sl_step
              isplitl [HA]; · iexact HA
              iexists _; isplitl [HB]; · iexact HB
              ipureintro; exact lanes_step' d L a5 a7 g5 g j _ _ hl
            · unfold laneV1
              isplitl [F9_dst]; · iexact F9_dst
              iexists _; isplitl [R7]; · iexact R7
              ipureintro; exact lanes_zero d L a5 a7 g5 _
            iintro %_ HI
            unfold laneV1
            icases HI with ⟨H5, %g7', H7, %hl7⟩
            have hl7 : Lanes d L a5 a7 g5 g7' 200 := Eq.mp (congrArg (Lanes d L a5 a7 g5 g7') trips3) hl7
            sl_exec
            sl_step
            isplitr; · iexact Hmw
            isplitl [HO]
            · iexists _; isplitr
              rotate_left
              · iexact HO
              ipureintro; intro p hp
              rcases Finset.mem_insert.mp hp with rfl | hp
              · exact .inr rfl
              rcases Finset.mem_insert.mp hp with rfl | hp
              · exact .inr rfl
              rcases Finset.mem_insert.mp hp with rfl | hp
              · exact .inr rfl
              rcases Finset.mem_insert.mp hp with rfl | hp
              · exact .inr rfl
              exact hW' p hp
            isplitl [HX F8_src F9_src]
            · iapply (Entails.of_eq (xSet_in (xP d L fx) k.val hk).symm)
              isplitl [F8_src]; · iapply (Entails.of_eq (xP_pos d L fx v0).symm); iexact F8_src
              isplitl [F9_src]; · iapply (Entails.of_eq (xP_pos d L fx v1).symm); iexact F9_src
              iexact HX
            isplitl [HOut F10_dst F11_dst]
            · iapply (Entails.of_eq (oSet_in (oMix d L fx (k.val + 1)) k.val hk (by omega)).symm)
              isplitl [F10_dst]; · iapply (Entails.of_eq ((oMix_lt d L fx (t := k.val + 1) (n := 2 * k.val - 2) (by omega)).trans (oQ_pos d L fx hm0.2)).symm); iexact F10_dst
              isplitl [F11_dst]
              · iapply (Entails.of_eq ((oMix_lt d L fx (t := k.val + 1) (n := 2 * k.val - 1) (by omega)).trans (oQ_pos d L fx (n := 2 * k.val - 1) (by have := hm1.2; rwa [show 2 * k.val + 1 - 2 = 2 * k.val - 1 by omega] at this))).symm)
                iapply (Entails.of_eq (congrArg (oqPiece d L fx) (show 2 * k.val + 1 - 2 = 2 * k.val - 1 by omega))); iexact F11_dst
              iapply (Entails.of_eq (oMix_core d L fx k.val)); iexact HOut
            isplitl [H4 F8]
            · iapply (Entails.of_eq (congrArg (inSlotV d L fx a4 cc1_scratch4.sem) (show 2 * k.val + 2 = 2 * (k.val + 1) by ring)))
              iapply (Entails.of_eq (inSlotV_neg d L fx v2).symm)
              isplitl [H4]; · iexists _; iexact H4
              iexact F8
            isplitl [F10 H6]
            · iapply (Entails.of_eq (congrArg (outSlotV d L fx a6 cc1_scratch6.sem) (show 2 * k.val + 2 = 2 * (k.val + 1) by ring)))
              iapply (fl_outV d L fx (off_5 L k v0) (k1_off5_inb L k k1_h2) v0 a4 a6 cc1_scratch6.sem f0 g4 g6' hl6 hin4); iexists _
              isplitr
              rotate_left
              · isplitl [F10]; · iexact F10
                iexact H6
              ipureintro; intro y; rfl
            isplitl [H5 F9]
            · iapply (Entails.of_eq (congrArg (inSlotV d L fx a5 cc1_scratch5.sem) (show 2 * k.val + 3 = 2 * (k.val + 1) + 1 by ring)))
              iapply (Entails.of_eq (inSlotV_neg d L fx v3').symm)
              isplitl [H5]; · iexists _; iexact H5
              iexact F9
            · iapply (Entails.of_eq (congrArg (outSlotV d L fx a7 cc1_scratch7.sem) (show 2 * k.val + 1 + 2 = 2 * (k.val + 1) + 1 by ring)))
              iapply (fl_outV d L fx (off_10 L k v1) (k1_off10_inb L k k1_h5) v1 a5 a7 cc1_scratch7.sem f1 g5 g7' hl7 hin5); iexists _
              isplitr
              rotate_left
              · isplitl [F11]; · iexact F11
                iexact H7
              ipureintro; intro y; rfl
          · -- the last trip of a tile with fifteen pieces: the second slot only drains
            have k1_h1 : k1_cond1 k = 1#1 := (cond1_iff k).mpr (by omega)
            have k1_h2 : k1_cond2 L k = 1#1 := cond2_iff L k
            have k1_h3 : ¬ k1_cond3 L k = 1#1 := fun h => absurd ((cond3_iff L k).mp h) (by omega)
            have k1_h4 : k1_cond4 k = 1#1 := (cond4_iff k).mpr (by omega)
            have k1_h5 : ¬ k1_cond5 L k = 1#1 := fun h => absurd ((cond5_iff L k).mp h) (by first | (unfold valid big at *; omega) | (unfold big at *; omega) | omega)
            have k1_h6 : ¬ k1_cond6 L k = 1#1 := fun h => absurd ((cond6_iff L k).mp h) (by first | (unfold valid big at *; omega) | (unfold big at *; omega) | omega)
            have v0 : valid L (2 * k.val) := by unfold valid big at *; omega
            have v1 : ¬ valid L (2 * k.val + 1) := by unfold valid big at *; omega
            have v2 : ¬ valid L (2 * k.val + 2) := by unfold valid big at *; omega
            have v3' : ¬ valid L (2 * k.val + 3) := by unfold valid big at *; omega
            have hm0 : 2 ≤ 2 * k.val ∧ valid L (2 * k.val - 2) := ⟨by omega, by unfold valid big at *; omega⟩
            have hm1 : 2 ≤ 2 * k.val + 1 ∧ valid L (2 * k.val + 1 - 2) := ⟨by omega, by unfold valid big at *; omega⟩
            ihave S8 := (Entails.of_eq (inSlotV_pos d L fx v0)) $$ S8
            icases S8 with ⟨%g4, %hin4, F8⟩
            ihave S9 := (Entails.of_eq (inSlotV_neg d L fx v1)) $$ S9
            icases S9 with ⟨⟨%g5, H5⟩, F9⟩
            ihave S10 := (Entails.of_eq (outSlotV_pos d L fx hm0)) $$ S10
            icases S10 with ⟨%g6, F10, R6⟩
            ihave S11 := (Entails.of_eq (outSlotV_pos d L fx hm1)) $$ S11
            icases S11 with ⟨%g7, F11, R7⟩
            ihave HX := (Entails.of_eq (xSet_out (xP d L fx) k.val hk)) $$ HX
            icases HX with ⟨-, -, HX⟩
            ihave HOut := (Entails.of_eq (oSet_out (oMix d L fx k.val) k.val hk)) $$ HOut
            icases HOut with ⟨Y0, -, HOut⟩
            ihave Y0 := (Entails.of_eq ((oMix_ge d L fx (t := k.val) (n := 2 * k.val) (by omega)).trans (oP_pos (F := F) d L v0))) $$ Y0
            icases Y0 with ⟨%f0, Y0⟩
            ihave Y0 := (Entails.of_eq (out_congr d L (off_5 L k v0).symm (out_inb L _) (k1_off5_inb L k k1_h2) f0)) $$ Y0
            sl_exec
            sl_for (laneV0 d L g4) $$ [F8_dst R6]
            case region =>
              intro (j : Fin k1_t2_loop.trips) _
              unfold laneV0
              iintro ⟨HA, %g, HB, %hl⟩
              sl_exec
              sl_step
              isplitl [HA]; · iexact HA
              iexists _; isplitl [HB]; · iexact HB
              ipureintro; exact lanes_step d L a4 a6 g4 g j _ _ hl
            · unfold laneV0
              isplitl [F8_dst]; · iexact F8_dst
              iexists _; isplitl [R6]; · iexact R6
              ipureintro; exact lanes_zero d L a4 a6 g4 _
            iintro %_ HI
            unfold laneV0
            icases HI with ⟨H4, %g6', H6, %hl6⟩
            have hl6 : Lanes d L a4 a6 g4 g6' 200 := Eq.mp (congrArg (Lanes d L a4 a6 g4 g6') trips2) hl6
            sl_exec
            sl_step
            isplitr; · iexact Hmw
            isplitl [HO]
            · iexists _; isplitr
              rotate_left
              · iexact HO
              ipureintro; intro p hp
              rcases Finset.mem_insert.mp hp with rfl | hp
              · exact .inr rfl
              rcases Finset.mem_insert.mp hp with rfl | hp
              · exact .inr rfl
              rcases Finset.mem_insert.mp hp with rfl | hp
              · exact .inr rfl
              exact hW' p hp
            isplitl [HX F8_src]
            · iapply (Entails.of_eq (xSet_in (xP d L fx) k.val hk).symm)
              isplitl [F8_src]; · iapply (Entails.of_eq (xP_pos d L fx v0).symm); iexact F8_src
              isplitr; · iapply (Entails.of_eq (xP_neg d L fx v1).symm); iempintro
              iexact HX
            isplitl [HOut F10_dst F11_dst]
            · iapply (Entails.of_eq (oSet_in (oMix d L fx (k.val + 1)) k.val hk (by omega)).symm)
              isplitl [F10_dst]; · iapply (Entails.of_eq ((oMix_lt d L fx (t := k.val + 1) (n := 2 * k.val - 2) (by omega)).trans (oQ_pos d L fx hm0.2)).symm); iexact F10_dst
              isplitl [F11_dst]
              · iapply (Entails.of_eq ((oMix_lt d L fx (t := k.val + 1) (n := 2 * k.val - 1) (by omega)).trans (oQ_pos d L fx (n := 2 * k.val - 1) (by have := hm1.2; rwa [show 2 * k.val + 1 - 2 = 2 * k.val - 1 by omega] at this))).symm)
                iapply (Entails.of_eq (congrArg (oqPiece d L fx) (show 2 * k.val + 1 - 2 = 2 * k.val - 1 by omega))); iexact F11_dst
              iapply (Entails.of_eq (oMix_core d L fx k.val)); iexact HOut
            isplitl [H4 F8]
            · iapply (Entails.of_eq (congrArg (inSlotV d L fx a4 cc1_scratch4.sem) (show 2 * k.val + 2 = 2 * (k.val + 1) by ring)))
              iapply (Entails.of_eq (inSlotV_neg d L fx v2).symm)
              isplitl [H4]; · iexists _; iexact H4
              iexact F8
            isplitl [F10 H6]
            · iapply (Entails.of_eq (congrArg (outSlotV d L fx a6 cc1_scratch6.sem) (show 2 * k.val + 2 = 2 * (k.val + 1) by ring)))
              iapply (fl_outV d L fx (off_5 L k v0) (k1_off5_inb L k k1_h2) v0 a4 a6 cc1_scratch6.sem f0 g4 g6' hl6 hin4); iexists _
              isplitr
              rotate_left
              · isplitl [F10]; · iexact F10
                iexact H6
              ipureintro; intro y; rfl
            isplitl [H5 F9]
            · iapply (Entails.of_eq (congrArg (inSlotV d L fx a5 cc1_scratch5.sem) (show 2 * k.val + 3 = 2 * (k.val + 1) + 1 by ring)))
              iapply (Entails.of_eq (inSlotV_neg d L fx v3').symm)
              isplitl [H5]; · iexists _; iexact H5
              iexact F9
            · iapply (Entails.of_eq (outSlotV_neg d L fx (m := 2 * (k.val + 1) + 1) (by intro h; apply v1; have := h.2; rwa [show 2 * (k.val + 1) + 1 - 2 = 2 * k.val + 1 by omega] at this)).symm)
              isplitl [R7]; · iexists _; iexact R7
              iexact F11
    · have hk0 : k.val = 0 := by omega
      -- the first trip: nothing to drain
      have k1_h1 : ¬ k1_cond1 k = 1#1 := fun h => absurd ((cond1_iff k).mp h) (by omega)
      have k1_h2 : k1_cond2 L k = 1#1 := cond2_iff L k
      have k1_h3 : k1_cond3 L k = 1#1 := (cond3_iff L k).mpr (by omega)
      have k1_h4 : ¬ k1_cond4 k = 1#1 := fun h => absurd ((cond4_iff k).mp h) (by omega)
      have k1_h5 : k1_cond5 L k = 1#1 := (cond5_iff L k).mpr (by first | (unfold valid big at *; omega) | (unfold big at *; omega) | omega)
      have k1_h6 : k1_cond6 L k = 1#1 := (cond6_iff L k).mpr (by first | (unfold valid big at *; omega) | (unfold big at *; omega) | omega)
      have v0 : valid L (2 * k.val) := by unfold valid big at *; omega
      have v1 : valid L (2 * k.val + 1) := by unfold valid big at *; omega
      have v2 : valid L (2 * k.val + 2) := by unfold valid big at *; omega
      have v3' : valid L (2 * k.val + 3) := by unfold valid big at *; omega
      have hm0 : ¬ (2 ≤ 2 * k.val ∧ valid L (2 * k.val - 2)) := by omega
      have hm1 : ¬ (2 ≤ 2 * k.val + 1 ∧ valid L (2 * k.val + 1 - 2)) := by omega
      ihave S8 := (Entails.of_eq (inSlotV_pos d L fx v0)) $$ S8
      icases S8 with ⟨%g4, %hin4, F8⟩
      ihave S9 := (Entails.of_eq (inSlotV_pos d L fx v1)) $$ S9
      icases S9 with ⟨%g5, %hin5, F9⟩
      ihave S10 := (Entails.of_eq (outSlotV_neg d L fx hm0)) $$ S10
      icases S10 with ⟨⟨%g6, R6⟩, F10⟩
      ihave S11 := (Entails.of_eq (outSlotV_neg d L fx hm1)) $$ S11
      icases S11 with ⟨⟨%g7, R7⟩, F11⟩
      ihave HX := (Entails.of_eq (xSet_out (xP d L fx) k.val hk)) $$ HX
      icases HX with ⟨X2, X3, HX⟩
      ihave X2 := (Entails.of_eq (xP_pos d L fx v2)) $$ X2
      ihave X2 := (Entails.of_eq (in_congr d L (off_6 L k v2).symm (in_inb L _) (k1_off6_inb L k k1_h3) fx)) $$ X2
      ihave X3 := (Entails.of_eq (xP_pos d L fx v3')) $$ X3
      ihave X3 := (Entails.of_eq (in_congr d L (off_11 L k v3').symm (in_inb L _) (k1_off11_inb L k k1_h6) fx)) $$ X3
      ihave HOut := (Entails.of_eq (oSet_out (oMix d L fx k.val) k.val hk)) $$ HOut
      icases HOut with ⟨Y0, Y1, HOut⟩
      ihave Y0 := (Entails.of_eq ((oMix_ge d L fx (t := k.val) (n := 2 * k.val) (by omega)).trans (oP_pos (F := F) d L v0))) $$ Y0
      icases Y0 with ⟨%f0, Y0⟩
      ihave Y0 := (Entails.of_eq (out_congr d L (off_5 L k v0).symm (out_inb L _) (k1_off5_inb L k k1_h2) f0)) $$ Y0
      ihave Y1 := (Entails.of_eq ((oMix_ge d L fx (t := k.val) (n := 2 * k.val + 1) (by omega)).trans (oP_pos (F := F) d L v1))) $$ Y1
      icases Y1 with ⟨%f1, Y1⟩
      ihave Y1 := (Entails.of_eq (out_congr d L (off_10 L k v1).symm (out_inb L _) (k1_off10_inb L k k1_h5) f1)) $$ Y1
      sl_exec
      sl_for (laneV0 d L g4) $$ [F8_dst R6]
      case region =>
        intro (j : Fin k1_t2_loop.trips) _
        unfold laneV0
        iintro ⟨HA, %g, HB, %hl⟩
        sl_exec
        sl_step
        isplitl [HA]; · iexact HA
        iexists _; isplitl [HB]; · iexact HB
        ipureintro; exact lanes_step d L a4 a6 g4 g j _ _ hl
      · unfold laneV0
        isplitl [F8_dst]; · iexact F8_dst
        iexists _; isplitl [R6]; · iexact R6
        ipureintro; exact lanes_zero d L a4 a6 g4 _
      iintro %_ HI
      unfold laneV0
      icases HI with ⟨H4, %g6', H6, %hl6⟩
      have hl6 : Lanes d L a4 a6 g4 g6' 200 := Eq.mp (congrArg (Lanes d L a4 a6 g4 g6') trips2) hl6
      sl_exec
      sl_for (laneV1 d L g5) $$ [F9_dst R7]
      case region =>
        intro (j : Fin k1_t3_loop.trips) _
        unfold laneV1
        iintro ⟨HA, %g, HB, %hl⟩
        sl_exec
        sl_step
        isplitl [HA]; · iexact HA
        iexists _; isplitl [HB]; · iexact HB
        ipureintro; exact lanes_step' d L a5 a7 g5 g j _ _ hl
      · unfold laneV1
        isplitl [F9_dst]; · iexact F9_dst
        iexists _; isplitl [R7]; · iexact R7
        ipureintro; exact lanes_zero d L a5 a7 g5 _
      iintro %_ HI
      unfold laneV1
      icases HI with ⟨H5, %g7', H7, %hl7⟩
      have hl7 : Lanes d L a5 a7 g5 g7' 200 := Eq.mp (congrArg (Lanes d L a5 a7 g5 g7') trips3) hl7
      sl_exec
      sl_step
      isplitr; · iexact Hmw
      isplitl [HO]
      · iexists _; isplitr
        rotate_left
        · iexact HO
        ipureintro; intro p hp
        rcases Finset.mem_insert.mp hp with rfl | hp
        · exact .inr rfl
        rcases Finset.mem_insert.mp hp with rfl | hp
        · exact .inr rfl
        exact hW' p hp
      isplitl [HX F8_src F9_src]
      · iapply (Entails.of_eq (xSet_in (xP d L fx) k.val hk).symm)
        isplitl [F8_src]; · iapply (Entails.of_eq (xP_pos d L fx v0).symm); iexact F8_src
        isplitl [F9_src]; · iapply (Entails.of_eq (xP_pos d L fx v1).symm); iexact F9_src
        iexact HX
      isplitl [HOut]
      · iapply (Entails.of_eq (congrArg (fun s => bigSep s (oMix d L fx (k.val + 1))) (show oCore k.val = oSet (k.val + 1) by rw [hk0]; decide)))
        iapply (Entails.of_eq (oMix_core d L fx k.val)); iexact HOut
      isplitl [F8]
      · iapply (Entails.of_eq (congrArg (inSlotV d L fx a4 cc1_scratch4.sem) (show 2 * k.val + 2 = 2 * (k.val + 1) by ring)))
        iapply (fl_inV d L fx (off_6 L k v2) (k1_off6_inb L k k1_h3) v2 a4 cc1_scratch4.sem); iexists _, _
        isplitr
        rotate_left
        · iexact F8
        ipureintro; intro y; rfl
      isplitl [F10 H6]
      · iapply (Entails.of_eq (congrArg (outSlotV d L fx a6 cc1_scratch6.sem) (show 2 * k.val + 2 = 2 * (k.val + 1) by ring)))
        iapply (fl_outV d L fx (off_5 L k v0) (k1_off5_inb L k k1_h2) v0 a4 a6 cc1_scratch6.sem f0 g4 g6' hl6 hin4); iexists _
        isplitr
        rotate_left
        · isplitl [F10]; · iexact F10
          iexact H6
        ipureintro; intro y; rfl
      isplitl [F9]
      · iapply (Entails.of_eq (congrArg (inSlotV d L fx a5 cc1_scratch5.sem) (show 2 * k.val + 3 = 2 * (k.val + 1) + 1 by ring)))
        iapply (fl_inV d L fx (off_11 L k v3') (k1_off11_inb L k k1_h6) v3' a5 cc1_scratch5.sem); iexists _, _
        isplitr
        rotate_left
        · iexact F9
        ipureintro; intro y; rfl
      · iapply (Entails.of_eq (congrArg (outSlotV d L fx a7 cc1_scratch7.sem) (show 2 * k.val + 1 + 2 = 2 * (k.val + 1) + 1 by ring)))
        iapply (fl_outV d L fx (off_10 L k v1) (k1_off10_inb L k k1_h5) v1 a5 a7 cc1_scratch7.sem f1 g5 g7' hl7 hin5); iexists _
        isplitr
        rotate_left
        · isplitl [F11]; · iexact F11
          iexact H7
        ipureintro; intro y; rfl
  · unfold invV
    isplitr; · iexact Hmw
    isplitl [HO]
    · iexists W; isplitr
      · ipureintro; exact fun p hp => .inl hp
      · iexact HO
    isplitl [HX]; · iexact HX
    isplitl [HOut]; · iapply (Entails.of_eq (oMix_zero d L fx).symm); iexact HOut
    isplitl [S8]; · iexact S8
    isplitl [H6 Hs10]
    · rw [outSlotV_neg d L fx (by omega)]; isplitl [H6]; · iexists _; iexact H6
      iexact Hs10
    isplitl [S9]; · iexact S9
    rw [outSlotV_neg d L fx (by omega)]; isplitl [H7]; · iexists _; iexact H7
    iexact Hs11
  iintro %acc' HI
  ihave HI := (Entails.of_eq (congrArg (fun t => invV d L O W fx t acc') trips1)) $$ HI
  unfold invV
  icases HI with ⟨-, ⟨%W', %hW', HO⟩, HX, HOut, S8, S10, S9, S11⟩
  have nv16 : ¬ valid L (2 * 8) := by unfold valid; omega
  have nv17 : ¬ valid L (2 * 8 + 1) := by unfold valid; omega
  have hm14 : 2 ≤ 2 * 8 ∧ valid L (2 * 8 - 2) := ⟨by omega, Or.inl (by omega)⟩
  ihave S8 := (Entails.of_eq (inSlotV_neg d L fx nv16)) $$ S8
  icases S8 with ⟨⟨%g4', H4⟩, Hs8⟩
  ihave S9 := (Entails.of_eq (inSlotV_neg d L fx nv17)) $$ S9
  icases S9 with ⟨⟨%g5', H5⟩, Hs9⟩
  ihave S10 := (Entails.of_eq (outSlotV_pos d L fx hm14)) $$ S10
  icases S10 with ⟨%g6', F10, R6⟩
  by_cases hb : big L
  · have k1_h8 : k1_cond8 L = 1#1 := (cond8_iff L).mpr hb
    have hm15 : 2 ≤ 2 * 8 + 1 ∧ valid L (2 * 8 + 1 - 2) := ⟨by omega, Or.inr ⟨by omega, hb⟩⟩
    ihave S11 := (Entails.of_eq (outSlotV_pos d L fx hm15)) $$ S11
    icases S11 with ⟨%g7', F11, R7⟩
    sl_exec
    sl_step
    isplitl [HX]; · iapply (xRange_end d L fx); iexact HX
    isplitl [HOut F10_dst F11_dst]
    · iapply (Entails.of_eq (oRange_end (oQ d L fx)).symm)
      isplitl [F10_dst]; · iapply (Entails.of_eq (oQ_pos d L fx hm14.2).symm); iexact F10_dst
      isplitl [F11_dst]; · iapply (Entails.of_eq (oQ_pos d L fx hm15.2).symm); iexact F11_dst
      iapply (Entails.of_eq (oMix_end d L fx)); iexact HOut
    isplitl [H4]; · iexists _; iexact H4
    isplitl [H5]; · iexists _; iexact H5
    isplitl [R6]; · iexists _; iexact R6
    isplitl [R7]; · iexists _; iexact R7
    isplitl [Hs8]; · iexact Hs8
    isplitl [Hs9]; · iexact Hs9
    isplitl [F10]; · iexact F10
    isplitl [F11]; · iexact F11
    isplitl [HO]
    · iexists _; isplitr
      rotate_left
      · iexact HO
      ipureintro; intro p hp
      rcases Finset.mem_insert.mp hp with rfl | hp
      · exact .inr rfl
      rcases Finset.mem_insert.mp hp with rfl | hp
      · exact .inr rfl
      exact hW' p hp
    iexact HR
  · have k1_h8 : ¬ k1_cond8 L = 1#1 := fun h => hb ((cond8_iff L).mp h)
    have hm15 : ¬ (2 ≤ 2 * 8 + 1 ∧ valid L (2 * 8 + 1 - 2)) := by intro h; have := h.2; unfold valid at this; omega
    ihave S11 := (Entails.of_eq (outSlotV_neg d L fx hm15)) $$ S11
    icases S11 with ⟨⟨%g7', R7⟩, F11⟩
    sl_exec
    sl_step
    isplitl [HX]; · iapply (xRange_end d L fx); iexact HX
    isplitl [HOut F10_dst]
    · iapply (Entails.of_eq (oRange_end (oQ d L fx)).symm)
      isplitl [F10_dst]; · iapply (Entails.of_eq (oQ_pos d L fx hm14.2).symm); iexact F10_dst
      isplitr; · iapply (Entails.of_eq (oQ_neg d L fx (n := 15) (by unfold valid; omega)).symm); iempintro
      iapply (Entails.of_eq (oMix_end d L fx)); iexact HOut
    isplitl [H4]; · iexists _; iexact H4
    isplitl [H5]; · iexists _; iexact H5
    isplitl [R6]; · iexists _; iexact R6
    isplitl [R7]; · iexists _; iexact R7
    isplitl [Hs8]; · iexact Hs8
    isplitl [Hs9]; · iexact Hs9
    isplitl [F10]; · iexact F10
    isplitl [F11]; · iexact F11
    isplitl [HO]
    · iexists _; isplitr
      rotate_left
      · iexact HO
      ipureintro; intro p hp
      rcases Finset.mem_insert.mp hp with rfl | hp
      · exact .inr rfl
      exact hW' p hp
    iexact HR

/-! The subcore's scoped storage: the four staging buffers and the four semaphores of this call, and the rest. -/

abbrev c8 : GSem nD τ sig := (thr d L, SemLoc.dma cc1_scratch4.sem)
abbrev c9 : GSem nD τ sig := (thr d L, SemLoc.dma cc1_scratch5.sem)
abbrev c10 : GSem nD τ sig := (thr d L, SemLoc.dma cc1_scratch6.sem)
abbrev c11 : GSem nD τ sig := (thr d L, SemLoc.dma cc1_scratch7.sem)

omit [FloatOps F] in
theorem ownSems0_V :
    (ownSems0 (thr d L) : sProp 𝕄)
      = iprop(semVal (c8 d L) 0 ∗ semVal (c9 d L) 0 ∗ semVal (c10 d L) 0 ∗ semVal (c11 d L) 0
          ∗ bigSep (((((ownCells (thr d L)).erase (c8 d L)).erase (c9 d L)).erase (c10 d L)).erase (c11 d L)) fun g => semVal g 0) := by
  unfold SparseCore.Cfg.ownSems0
  rw [SparseCore.bigSep_erase' ((mem_ownCells (g := c8 d L)).mpr ⟨rfl, by
      show (SemLoc.dma cc1_scratch4.sem : SemLoc sig).isScoped .scVector = true; decide⟩),
    SparseCore.bigSep_erase' (Finset.mem_erase.mpr ⟨fun e => absurd (Prod.mk.inj e).2 (by decide), (mem_ownCells (g := c9 d L)).mpr ⟨rfl, by
      show (SemLoc.dma cc1_scratch5.sem : SemLoc sig).isScoped .scVector = true; decide⟩⟩),
    SparseCore.bigSep_erase' (Finset.mem_erase.mpr ⟨fun e => absurd (Prod.mk.inj e).2 (by decide), Finset.mem_erase.mpr ⟨fun e => absurd (Prod.mk.inj e).2 (by decide),
      (mem_ownCells (g := c10 d L)).mpr ⟨rfl, by show (SemLoc.dma cc1_scratch6.sem : SemLoc sig).isScoped .scVector = true; decide⟩⟩⟩),
    SparseCore.bigSep_erase' (Finset.mem_erase.mpr ⟨fun e => absurd (Prod.mk.inj e).2 (by decide), Finset.mem_erase.mpr ⟨fun e => absurd (Prod.mk.inj e).2 (by decide),
      Finset.mem_erase.mpr ⟨fun e => absurd (Prod.mk.inj e).2 (by decide),
      (mem_ownCells (g := c11 d L)).mpr ⟨rfl, by show (SemLoc.dma cc1_scratch7.sem : SemLoc sig).isScoped .scVector = true; decide⟩⟩⟩⟩)]

abbrev pV (L : grid1.Coords) : Proc τ := Proc.scVector (cV L) (jV L)

omit [FloatOps F] in
theorem ownBufs_V :
    (ownBufs (thr d L) : sProp 𝕄)
      = iprop((∃ f, (thr d L).loc cc1_scratch0 ↦{fullShare} f) ∗ (∃ f, (thr d L).loc cc1_scratch1 ↦{fullShare} f)
          ∗ (∃ f, (thr d L).loc cc1_scratch2 ↦{fullShare} f) ∗ (∃ f, (thr d L).loc cc1_scratch3 ↦{fullShare} f)
          ∗ bigSep (((((ownRefs (τ := τ) (pV L)).erase ((pV L).devRef cc1_scratch0)).erase ((pV L).devRef cc1_scratch1)).erase
              ((pV L).devRef cc1_scratch2)).erase ((pV L).devRef cc1_scratch3))
              fun b => iprop(∃ f, ((d, b) : Loc nD τ sig) ↦{fullShare} f)) := by
  unfold SparseCore.Cfg.ownBufs
  refine (SparseCore.bigSep_erase' (SparseCore.Cfg.mem_ownRefs_of_owner (p := pV L) (b := (pV L).devRef cc1_scratch0) rfl)).trans ?_
  rw [SparseCore.bigSep_erase' (Finset.mem_erase.mpr ⟨fun e => absurd (Proc.devRef_injective _ e) (show (cc1_scratch1 : Ref sig .scVector) ≠ cc1_scratch0 by decide),
      SparseCore.Cfg.mem_ownRefs_of_owner (p := pV L) (b := (pV L).devRef cc1_scratch1) rfl⟩),
    SparseCore.bigSep_erase' (Finset.mem_erase.mpr ⟨fun e => absurd (Proc.devRef_injective _ e) (show (cc1_scratch2 : Ref sig .scVector) ≠ cc1_scratch1 by decide),
      Finset.mem_erase.mpr ⟨fun e => absurd (Proc.devRef_injective _ e) (show (cc1_scratch2 : Ref sig .scVector) ≠ cc1_scratch0 by decide),
      SparseCore.Cfg.mem_ownRefs_of_owner (p := pV L) (b := (pV L).devRef cc1_scratch2) rfl⟩⟩),
    SparseCore.bigSep_erase' (Finset.mem_erase.mpr ⟨fun e => absurd (Proc.devRef_injective _ e) (show (cc1_scratch3 : Ref sig .scVector) ≠ cc1_scratch2 by decide),
      Finset.mem_erase.mpr ⟨fun e => absurd (Proc.devRef_injective _ e) (show (cc1_scratch3 : Ref sig .scVector) ≠ cc1_scratch1 by decide),
      Finset.mem_erase.mpr ⟨fun e => absurd (Proc.devRef_injective _ e) (show (cc1_scratch3 : Ref sig .scVector) ≠ cc1_scratch0 by decide),
      SparseCore.Cfg.mem_ownRefs_of_owner (p := pV L) (b := (pV L).devRef cc1_scratch3) rfl⟩⟩⟩)]

/-- The rest of the subcore's scoped storage, which the task does not touch. -/
def restR : sProp 𝕄 :=
  iprop((bigSep (((((ownRefs (τ := τ) (pV L)).erase ((pV L).devRef cc1_scratch0)).erase ((pV L).devRef cc1_scratch1)).erase
              ((pV L).devRef cc1_scratch2)).erase ((pV L).devRef cc1_scratch3))
              fun b => iprop(∃ f, ((d, b) : Loc nD τ sig) ↦{fullShare} f))
      ∗ bigSep (((((ownCells (thr d L)).erase (c8 d L)).erase (c9 d L)).erase (c10 d L)).erase (c11 d L)) fun g => semVal g 0)

theorem body_pre (hO : ∀ g, O g none = 0) :
    iprop(levAts (K (F := F)).L (K (F := F)).lev ∗ emp ∗ goRes d L fx ∗ ownBufs (thr d L) ∗ ownSems0 (thr d L) ∗ owes (thr d L) O W)
      ⊢ runPre d L O W fx (restR (F := F) d L) := by
  rw [ownSems0_V, ownBufs_V]
  unfold goRes runPre restR
  iintro ⟨#Hlv, -, ⟨HX, HOut⟩, ⟨H4, H5, H6, H7, Hbufs⟩, ⟨Hs8, Hs9, Hs10, Hs11, Hsems⟩, HO⟩
  ihave Hmw := ((K (F := F)).mayWaits_none (thr := thr d L) hO) $$ Hlv
  isplitr; · iexact Hmw
  isplitl [HO]; · iexact HO
  isplitl [HX]; · iexact HX
  isplitl [HOut]; · iexact HOut
  isplitl [H4]; · iexact H4
  isplitl [H5]; · iexact H5
  isplitl [H6]; · iexact H6
  isplitl [H7]; · iexact H7
  isplitl [Hs8]; · iexact Hs8
  isplitl [Hs9]; · iexact Hs9
  isplitl [Hs10]; · iexact Hs10
  isplitl [Hs11]; · iexact Hs11
  isplitl [Hbufs]; · iexact Hbufs
  iexact Hsems

theorem body_post :
    runPost d L O W fx (restR (F := F) d L)
      ⊢ iprop(tdRes d L fx ∗ ownBufs (thr d L) ∗ ownSems0 (thr d L) ∗ ∃ W', ⌜∀ p ∈ W', p ∈ W ∨ p.2 = none⌝ ∗ owes (thr d L) O W') := by
  rw [ownSems0_V, ownBufs_V]
  unfold tdRes runPost restR
  iintro ⟨HX, HOut, H4, H5, H6, H7, Hs8, Hs9, Hs10, Hs11, HW, Hbufs, Hsems⟩
  isplitl [HX HOut]
  · isplitl [HX]; · iexact HX
    iexact HOut
  isplitl [H4 H5 H6 H7 Hbufs]
  · isplitl [H4]; · iexact H4
    isplitl [H5]; · iexact H5
    isplitl [H6]; · iexact H6
    isplitl [H7]; · iexact H7
    iexact Hbufs
  isplitl [Hs8 Hs9 Hs10 Hs11 Hsems]
  · isplitl [Hs8]; · iexact Hs8
    isplitl [Hs9]; · iexact Hs9
    isplitl [Hs10]; · iexact Hs10
    isplitl [Hs11]; · iexact Hs11
    iexact Hsems
  iexact HW

/-- The task in the launch theorem's shape: from what the call hands the tile and the subcore's scoped storage to
    what the tile hands back and the storage again. -/
theorem tile_body (hF : (K (F := F)).Facts) (hO : ∀ g, O g none = 0) :
    iprop(levAts (K (F := F)).L (K (F := F)).lev ∗ emp ∗ goRes d L fx ∗ scopedBufs (thr d L) ∗ scopedSems0 (thr d L) ∗ owes (thr d L) O W)
      ⊢ wp frame (wpE (defs₀ (F := F)) 𝒱₀ (thr d L) none) Set.univ
          (cc1_sc_group L xtW (Memref.isWhole_whole _) oW (Memref.isWhole_whole _) a4 (Memref.isWhole_whole _) a5 (Memref.isWhole_whole _)
            a6 (Memref.isWhole_whole _) a7 (Memref.isWhole_whole _) cc1_scratch4 cc1_scratch5 cc1_scratch6 cc1_scratch7)
          fun _ => iprop(tdRes d L fx ∗ scopedBufs (thr d L) ∗ scopedSems0 (thr d L)
            ∗ ∃ W', ⌜∀ p ∈ W', p ∈ W ∨ p.2 = none⌝ ∗ owes (thr d L) O W') := by
  rw [(K (F := F)).scopedBufs_V hF d (cV L) (jV L), SparseCore.Cfg.scopedSems0_V (Val := Elt F) d (cV L) (jV L)]
  exact (body_pre d L O W fx hO).trans ((tile_run d L O W fx (restR (F := F) d L)).trans (wp_mono frame _ _ fun _ => body_post d L O W fx))

end Tile

end Cert.Proof.TileB1

end
-- ==== Proof.TileVal2.lean ====
/-
  What the staging buffers of one vector subcore hold while it copies a piece of 3200 consecutive elements of row 2 of
  the transposed argument into the flat result, read index by index. No program and no ownership here: only the contents.

  A transfer lands the piece in row 0 of an 8 × 3200 staging array (`InRow`: position (0, t) of that row holds element
  (0, pos + t) of the transposed argument, `pos` the piece's first column). A loop of 200 trips copies that row, 16 lanes
  per trip, into the first 3200 elements of a flat staging array of 25600: trip `j` reads the 1 × 16 window at columns
  [16 j, 16 j + 16) of row 0 and writes it, flattened, at elements [16 j, 16 j + 16). After `j` trips the first 16 j
  elements of the flat array are the first 16 j elements of the row (`Lanes`); a trip extends the prefix by 16
  (`lanes_step`: an element below 16 j is outside the window written and keeps its value, an element of the window reads
  the lane written there, which is the row's element at the same column). A second transfer writes the first 3200
  elements of the flat array to the piece of the result at the same `pos`; so every element of that piece of the result
  holds the element of row 2 of the transposed argument at its own position (`out_written`): the composite of the three
  index maps t ↦ (0, pos + t) ↦ (0, t) ↦ t ↦ pos + t is the identity on positions of the row.
-/
import proofs.«206869_g37898791420194_cont_8to1_b_558_20_alg».proof.Proof.TileK2Defs
import proofs.«206869_g37898791420194_cont_8to1_b_558_20_alg».proof.Proof.Spec
import Idealize.ShloMosaic.Lib.WritesUnit
import Idealize.ShloMosaic.Lib.ValueLayout

noncomputable section

namespace Cert.Proof.TileVal2

open Cert.Proof.TileK2 Cert.KernelIdeal Cert.KernelIdeal.Gen
open Idealize.ShloMosaic Idealize.ShloMosaic.ValueIdx

variable {F : FTy → Type} [FloatOps F]
variable (d : Dev nD) (L : grid2.Coords)
variable (fx : Buf (Elt F) ((Memref.whole main_v0_scv : Memref sig .scVector .hbm S22x1600000 .f32).view.loc (thr d L)))

abbrev rowRect : Rect S8x3200 := Rect.unit (s := S8x3200) ![0, 0] S1x3200.size inb_S8x3200_S1x3200_0_0

/-- row 0 of the staging array is piece n of the argument row -/
def InRow (a : Memref sig .scVector .vmem S8x3200 .f32) (ga : Buf (Elt F) (a.view.loc (thr d L))) (n : ℕ) : Prop :=
  ∀ y : S1x3200.Idx, a.view.read (Elt F) ga (rowRect.emb y) = (inM L n).view.read (Elt F) fx y

theorem inRow_fetch (a : Memref sig .scVector .vmem S8x3200 .f32) (gold : Buf (Elt F) (a.view.loc (thr d L)))
    (w : S1x3200.Idx → Elt F .f32) (n : ℕ) (hw : ∀ y, w y = (inM L n).view.read (Elt F) fx y) :
    InRow d L fx a (a.view.writes (Elt F) gold [⟨rowRect, w⟩]) n :=
  fun y => (View.read_writes_cons_emb a.view gold rowRect w [] y).trans (hw y)

def Lanes (a : Memref sig .scVector .vmem S8x3200 .f32) (b : Memref sig .scVector .vmem S25600 .f32)
    (ga : Buf (Elt F) (a.view.loc (thr d L))) (gb : Buf (Elt F) (b.view.loc (thr d L))) (j : ℕ) : Prop :=
  ∀ (r : ℕ) (hr : r < 3200), r < 16 * j →
    b.view.read (Elt F) gb (ix1 (⟨r, by omega⟩ : Fin 25600)) = a.view.read (Elt F) ga (ix2 (0 : Fin 8) (⟨r, hr⟩ : Fin 3200))

theorem lanes_zero (a : Memref sig .scVector .vmem S8x3200 .f32) (b : Memref sig .scVector .vmem S25600 .f32)
    (ga : Buf (Elt F) (a.view.loc (thr d L))) (gb : Buf (Elt F) (b.view.loc (thr d L))) : Lanes d L a b ga gb 0 := by
  intro r hr h; omega

/-- The 1 × 16 window at column `c` of the staging array, read at lane `t`, is element `(0, c + t)`. -/
theorem idx_window {off : Fin 2 → ℕ} {c : ℕ} (h : off = ![0, c]) (p : ∀ a', off a' + S1x16.size a' ≤ S8x3200.size a')
    (t : Fin 16) (hr : c + t.val < 3200) :
    (Rect.unit (s := S8x3200) off S1x16.size p).toLoadRect.idx (ix2 (0 : Fin 1) t) = ix2 (0 : Fin 8) (⟨c + t.val, hr⟩ : Fin 3200) := by
  subst h
  funext a'; apply Fin.ext
  rw [LoadRect.idx_apply]
  match a' with
  | ⟨0, _⟩ => show 0 + 1 * 0 = 0; omega
  | ⟨1, _⟩ => show c + 1 * t.val = c + t.val; omega

/-- One trip of a lane-copy loop, the offsets given by their closed forms. -/
theorem lanes_step_core (a : Memref sig .scVector .vmem S8x3200 .f32) (b : Memref sig .scVector .vmem S25600 .f32)
    (ga : Buf (Elt F) (a.view.loc (thr d L))) (gb : Buf (Elt F) (b.view.loc (thr d L)))
    (t : ℕ) {off3 : Fin 2 → ℕ} {off4 : Fin 1 → ℕ} (h3 : off3 = ![0, 16 * t]) (h4 : off4 = ![16 * t])
    (p3 : ∀ a', off3 a' + S1x16.size a' ≤ S8x3200.size a') (p4 : ∀ a', off4 a' + S16.size a' ≤ S25600.size a')
    (h : Lanes d L a b ga gb t) :
    Lanes d L a b ga (b.view.writes (Elt F) gb [⟨Rect.unit (s := S25600) off4 S16.size p4,
      shapeCast S16 (a.view.readAt (Elt F) (Rect.unit (s := S8x3200) off3 S1x16.size p3).toLoadRect ga) shapeCasts_S1x16_S16⟩]) (t + 1) := by
  intro r hr hlt
  by_cases hlo : r < 16 * t
  · refine (View.read_writes_cons_unit_of_not_mem b.view gb p4 _ [] _ h4 (0 : Fin 1) (Or.inl ?_)).trans (h r hr hlo)
    show r < 16 * t
    exact hlo
  · have hx : r - 16 * t < 16 := by omega
    refine (View.read_writes_cons_unit_of_mem b.view gb p4 _ [] _ (ix1 (⟨r - 16 * t, hx⟩ : Fin 16)) h4 ?_).trans ?_
    · intro a'
      match a' with
      | ⟨0, _⟩ => show r = 16 * t + (r - 16 * t); omega
    · rw [shapeCast_1a_a_apply, View.readAt_apply, idx_window h3 p3 ⟨r - 16 * t, hx⟩ (by show 16 * t + (r - 16 * t) < 3200; omega)]
      congr 2
      apply Fin.ext
      show 16 * t + (r - 16 * t) = r
      omega

theorem lanes_step (a : Memref sig .scVector .vmem S8x3200 .f32) (b : Memref sig .scVector .vmem S25600 .f32)
    (ga : Buf (Elt F) (a.view.loc (thr d L))) (gb : Buf (Elt F) (b.view.loc (thr d L)))
    (j : Fin k2_t2_loop.trips) (p3 : ∀ a', (k2_off3 j) a' + S1x16.size a' ≤ S8x3200.size a')
    (p4 : ∀ a', (k2_off4 j) a' + S16.size a' ≤ S25600.size a') (h : Lanes d L a b ga gb j.val) :
    Lanes d L a b ga (b.view.writes (Elt F) gb [⟨Rect.unit (s := S25600) (k2_off4 j) S16.size p4,
      k2_pay1 (a.view.readAt (Elt F) (Rect.unit (s := S8x3200) (k2_off3 j) S1x16.size p3).toLoadRect ga)⟩]) (j.val + 1) :=
  lanes_step_core d L a b ga gb j.val (k2_off3_eq j) (k2_off4_eq j) p3 p4 h

theorem lanes_step' (a : Memref sig .scVector .vmem S8x3200 .f32) (b : Memref sig .scVector .vmem S25600 .f32)
    (ga : Buf (Elt F) (a.view.loc (thr d L))) (gb : Buf (Elt F) (b.view.loc (thr d L)))
    (j : Fin k2_t3_loop.trips) (p3 : ∀ a', (k2_off8 j) a' + S1x16.size a' ≤ S8x3200.size a')
    (p4 : ∀ a', (k2_off9 j) a' + S16.size a' ≤ S25600.size a') (h : Lanes d L a b ga gb j.val) :
    Lanes d L a b ga (b.view.writes (Elt F) gb [⟨Rect.unit (s := S25600) (k2_off9 j) S16.size p4,
      k2_pay2 (a.view.readAt (Elt F) (Rect.unit (s := S8x3200) (k2_off8 j) S1x16.size p3).toLoadRect ga)⟩]) (j.val + 1) :=
  lanes_step_core d L a b ga gb j.val (k2_off8_eq j) (k2_off9_eq j) p3 p4 h

/-- Position `y` of the write-out window of the flat staging array is its element `y 0`. -/
theorem stg_emb (y : S3200.Idx) (hy : (y 0).val < 25600) :
    (Rect.unit (s := S25600) ![0] S3200.size inb_S25600_S3200_0).emb y = ix1 (⟨(y 0).val, hy⟩ : Fin 25600) := by
  funext a'; apply Fin.ext
  match a' with
  | ⟨0, _⟩ => show 0 + 1 * (y 0).val = (y 0).val; omega

/-- Position `(0, t)` of row 0 of the staging array is its element `(0, t)`. -/
theorem row_emb (t : Fin 3200) : rowRect.emb (ix2 (0 : Fin 1) t) = ix2 (0 : Fin 8) t := by
  funext a'; apply Fin.ext
  match a' with
  | ⟨0, _⟩ => show 0 + 1 * 0 = 0; omega
  | ⟨1, _⟩ => show 0 + 1 * t.val = t.val; omega

/-- Position `(0, t)` of piece `n` of the argument row is element `(0, pos + t)` of the transposed argument;
    position `y` of piece `n` of the result is element `pos + y 0` of the result. -/
theorem in_emb (n : ℕ) (t : Fin 3200) (h : pos L n + t.val < 1600000) :
    (inM L n).view.emb (ix2 (0 : Fin 1) t) = ix2 (2 : Fin 22) (⟨pos L n + t.val, h⟩ : Fin 1600000) := by
  funext a'; apply Fin.ext
  match a' with
  | ⟨0, _⟩ => show 2 + 1 * 0 = 2; omega
  | ⟨1, _⟩ => show pos L n + 1 * t.val = pos L n + t.val; omega

theorem out_emb (n : ℕ) (y : S3200.Idx) (h : pos L n + (y 0).val < 1600000) :
    (outM L n).view.emb y = ix1 (⟨pos L n + (y 0).val, h⟩ : Fin 1600000) := by
  funext a'; apply Fin.ext
  match a' with
  | ⟨0, _⟩ => show pos L n + 1 * (y 0).val = pos L n + (y 0).val; omega

/-- Both lane-copy loops run 200 trips: 200 · 16 = 3200, the whole row. -/
theorem trips2 : k2_t2_loop.trips = 200 := by decide
theorem trips3 : k2_t3_loop.trips = 200 := by decide

/-- After all its trips a lane-copy loop has copied the whole row. -/
theorem lanes_all (a : Memref sig .scVector .vmem S8x3200 .f32) (b : Memref sig .scVector .vmem S25600 .f32)
    (ga : Buf (Elt F) (a.view.loc (thr d L))) (gb : Buf (Elt F) (b.view.loc (thr d L)))
    (h : Lanes d L a b ga gb k2_t2_loop.trips) : Lanes d L a b ga gb 200 := trips2 ▸ h
theorem lanes_all' (a : Memref sig .scVector .vmem S8x3200 .f32) (b : Memref sig .scVector .vmem S25600 .f32)
    (ga : Buf (Elt F) (a.view.loc (thr d L))) (gb : Buf (Elt F) (b.view.loc (thr d L)))
    (h : Lanes d L a b ga gb k2_t3_loop.trips) : Lanes d L a b ga gb 200 := trips3 ▸ h

/-- The write-out of a piece: the first 3200 elements of the flat staging array, which the 200 lane copies filled from
    row 0 of the staging array, which the fetch filled from piece `n` of row 2 of the transposed argument, land at
    piece `n` of the result, at the same positions of the row. -/
theorem out_written (a : Memref sig .scVector .vmem S8x3200 .f32) (b : Memref sig .scVector .vmem S25600 .f32) (n : ℕ)
    (ga : Buf (Elt F) (a.view.loc (thr d L))) (gb : Buf (Elt F) (b.view.loc (thr d L)))
    (f0 : Buf (Elt F) ((outM L n).view.loc (thr d L))) (w : S3200.Idx → Elt F .f32)
    (hw : ∀ y, w y = (stg b).view.read (Elt F) gb y) (hl : Lanes d L a b ga gb 200) (hr : InRow d L fx a ga n) (hv : valid L n) :
    ∀ i ∈ (outM L n).view.set, ((outM L n).view.writes (Elt F) f0 [⟨Rect.whole _, w⟩]) i = Cert.Spec.row 2 fx i := by
  intro i hi
  obtain ⟨y, -, rfl⟩ := Finset.mem_map.mp hi
  have hy : (y 0).val < 3200 := (y 0).isLt
  have hp : pos L n + (y 0).val < 1600000 := by unfold pos; omega
  have e1 : (outM L n).view.writes (Elt F) f0 [⟨Rect.whole _, w⟩] ((outM L n).view.emb y) = w y := by
    have h := View.read_writes_cons_emb (outM L n).view f0 (Rect.whole _) w [] y
    rw [Rect.emb_whole_apply] at h
    exact (cast_eq _ _).symm.trans ((View.read_apply _ _).symm.trans h)
  have e2 : (stg b).view.read (Elt F) gb y = b.view.read (Elt F) gb (ix1 (⟨(y 0).val, by omega⟩ : Fin 25600)) :=
    congrArg (b.view.read (Elt F) gb) (stg_emb y (by omega))
  have e3 : a.view.read (Elt F) ga (ix2 (0 : Fin 8) (⟨(y 0).val, hy⟩ : Fin 3200))
      = (inM L n).view.read (Elt F) fx (ix2 (0 : Fin 1) (⟨(y 0).val, hy⟩ : Fin 3200)) :=
    (congrArg (a.view.read (Elt F) ga) (row_emb ⟨(y 0).val, hy⟩).symm).trans (hr _)
  have e4 : (inM L n).view.read (Elt F) fx (ix2 (0 : Fin 1) (⟨(y 0).val, hy⟩ : Fin 3200))
      = fx (ix2 (2 : Fin 22) (⟨pos L n + (y 0).val, hp⟩ : Fin 1600000)) :=
    ((View.read_apply _ _).trans (cast_eq _ _)).trans (congrArg fx (in_emb L n ⟨(y 0).val, hy⟩ hp))
  have e5 : Cert.Spec.row 2 fx ((outM L n).view.emb y) = fx (ix2 (2 : Fin 22) (⟨pos L n + (y 0).val, hp⟩ : Fin 1600000)) :=
    (congrArg (Cert.Spec.row 2 fx) (out_emb L n y hp)).trans (Cert.Spec.row_apply 2 fx _)
  exact e1.trans ((hw y).trans (e2.trans ((hl _ hy (by omega)).trans (e3.trans (e4.trans e5.symm)))))

end Cert.Proof.TileVal2

end
-- ==== Proof.TileK2.lean ====
/-
  One vector subcore's task of copy kernel 2 (counting from 0), run symbolically: the two fetch slots and two write-out slots
  between trips of the main loop (what each transfer in flight will hand back, and what the staging buffers hold), the
  invariant of the main loop and of the two lane-copy loops, and the task's run — from the tile's pieces of row 2 of
  the transposed argument and of the result to the same pieces with the result holding the row's elements.
-/
import proofs.«206869_g37898791420194_cont_8to1_b_558_20_alg».proof.Proof.TileK2Defs
import proofs.«206869_g37898791420194_cont_8to1_b_558_20_alg».proof.Proof.TileVal2
noncomputable section

namespace Cert.Proof.TileK2

open Cert.KernelIdeal Cert.KernelIdeal.Gen Cert.Proof.TileVal2
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 22) (Elt F) ℕ UU ℕ
local notation "xtW" => (Memref.whole Cert.KernelIdeal.main_v0_scv : Memref Cert.KernelIdeal.sig Kind.scVector Space.hbm Cert.KernelIdeal.S22x1600000 EltTy.f32)
local notation "oW" => (Memref.whole Cert.KernelIdeal.main_v3_scv : Memref Cert.KernelIdeal.sig Kind.scVector Space.hbm Cert.KernelIdeal.S1600000 EltTy.f32)
local notation "a4" => (Memref.whole Cert.KernelIdeal.cc2_scratch0 : Memref Cert.KernelIdeal.sig Kind.scVector Space.vmem Cert.KernelIdeal.S8x3200 EltTy.f32)
local notation "a5" => (Memref.whole Cert.KernelIdeal.cc2_scratch1 : Memref Cert.KernelIdeal.sig Kind.scVector Space.vmem Cert.KernelIdeal.S8x3200 EltTy.f32)
local notation "a6" => (Memref.whole Cert.KernelIdeal.cc2_scratch2 : Memref Cert.KernelIdeal.sig Kind.scVector Space.vmem Cert.KernelIdeal.S25600 EltTy.f32)
local notation "a7" => (Memref.whole Cert.KernelIdeal.cc2_scratch3 : Memref Cert.KernelIdeal.sig Kind.scVector Space.vmem Cert.KernelIdeal.S25600 EltTy.f32)

variable [FloatOps F]

section Tile

variable (d : Dev nD) (L : grid2.Coords)
variable (O : CellTallies nD τ sig (HIx 22)) (W : Waits sig (HIx 22))
variable (fx : Buf (Elt F) ((xtW).view.loc (thr d L)))

/-- Piece `n` of the result at its final contents. -/
abbrev oqPiece (n : ℕ) : sProp 𝕄 := (outM L n).view.loc (thr d L) ↦[(outM L n).view.set]{fullShare} (Cert.Spec.row 2 fx)
theorem oQ_pos {n : ℕ} (v : valid L n) : oQ d L fx n = oqPiece d L fx n := if_pos v
theorem oQ_neg {n : ℕ} (v : ¬ valid L n) : oQ d L fx n = iprop(emp) := if_neg v

/-- A fetch slot, remembering that the staging row it will hand back holds the piece. -/
def inSlotV (a : Memref sig .scVector .vmem S8x3200 .f32) (sm : DmaSem sig) (n : ℕ) : sProp 𝕄 :=
  if valid L n then
    iprop(∃ g, ⌜InRow d L fx a g n⌝ ∗ Transfers.Flight countersEmb (thr d L) (SemLoc.dma sm) (default : HIx 22) NN
      iprop((a.view.loc (thr d L) ↦{fullShare} g) ∗ xtPiece d L fx n))
  else iprop((∃ g, a.view.loc (thr d L) ↦{fullShare} g) ∗ semVal (thr d L, SemLoc.dma sm) 0)

/-- A write-out slot: the piece in flight will come back holding the row's elements. -/
def outSlotV (a : Memref sig .scVector .vmem S25600 .f32) (sm : DmaSem sig) (m : ℕ) : sProp 𝕄 :=
  if 2 ≤ m ∧ valid L (m - 2) then
    iprop(∃ g, Transfers.Flight countersEmb (thr d L) (SemLoc.dma sm) (default : HIx 22) NN
        iprop(oqPiece d L fx (m - 2) ∗ ((stg a).view.loc (thr d L) ↦[(stg a).view.set]{fullShare} g))
      ∗ (a.view.loc (thr d L) ↦[Finset.univ \ (stg a).view.set]{fullShare} g))
  else iprop((∃ g, a.view.loc (thr d L) ↦{fullShare} g) ∗ semVal (thr d L, SemLoc.dma sm) 0)

theorem inSlotV_pos {a : Memref sig .scVector .vmem S8x3200 .f32} {sm : DmaSem sig} {n : ℕ} (v : valid L n) :
    inSlotV d L fx a sm n = iprop(∃ g, ⌜InRow d L fx a g n⌝ ∗ Transfers.Flight countersEmb (thr d L) (SemLoc.dma sm) (default : HIx 22) NN
      iprop((a.view.loc (thr d L) ↦{fullShare} g) ∗ xtPiece d L fx n)) := by unfold inSlotV; rw [if_pos v]
theorem inSlotV_neg {a : Memref sig .scVector .vmem S8x3200 .f32} {sm : DmaSem sig} {n : ℕ} (v : ¬ valid L n) :
    inSlotV d L fx a sm n = iprop((∃ g, a.view.loc (thr d L) ↦{fullShare} g) ∗ semVal (thr d L, SemLoc.dma sm) 0) := by
  unfold inSlotV; rw [if_neg v]
theorem outSlotV_pos {a : Memref sig .scVector .vmem S25600 .f32} {sm : DmaSem sig} {m : ℕ} (h : 2 ≤ m ∧ valid L (m - 2)) :
    outSlotV d L fx a sm m = iprop(∃ g, Transfers.Flight countersEmb (thr d L) (SemLoc.dma sm) (default : HIx 22) NN
        iprop(oqPiece d L fx (m - 2) ∗ ((stg a).view.loc (thr d L) ↦[(stg a).view.set]{fullShare} g))
      ∗ (a.view.loc (thr d L) ↦[Finset.univ \ (stg a).view.set]{fullShare} g)) := by unfold outSlotV; rw [if_pos h]
theorem outSlotV_neg {a : Memref sig .scVector .vmem S25600 .f32} {sm : DmaSem sig} {m : ℕ} (h : ¬ (2 ≤ m ∧ valid L (m - 2))) :
    outSlotV d L fx a sm m = iprop((∃ g, a.view.loc (thr d L) ↦{fullShare} g) ∗ semVal (thr d L, SemLoc.dma sm) 0) := by
  unfold outSlotV; rw [if_neg h]

/-- A fetch just issued: the staging row will hold what the transfer reads, which is the piece. -/
theorem fl_inV {off : Fin 2 → ℕ} {n : ℕ} (h : off = ![2, pos L n]) (p : ∀ a, off a + S1x3200.size a ≤ S22x1600000.size a) (v : valid L n)
    (a : Memref sig .scVector .vmem S8x3200 .f32) (sm : DmaSem sig) :
    (iprop(∃ (gold : Buf (Elt F) (a.view.loc (thr d L))) (w : S1x3200.Idx → Elt F .f32),
        ⌜∀ y, w y = ((xtW).slice (Rect.unit (s := S22x1600000) off S1x3200.size p) (fun _ => rfl)).view.read (Elt F) fx y⌝
        ∗ Transfers.Flight countersEmb (thr d L) (SemLoc.dma sm) (default : HIx 22) NN
          iprop((a.view.loc (thr d L) ↦{fullShare} a.view.writes (Elt F) gold [⟨rowRect, w⟩])
            ∗ (((xtW).slice (Rect.unit (s := S22x1600000) off S1x3200.size p) (fun _ => rfl)).view.loc (thr d L)
                ↦[((xtW).slice (Rect.unit (s := S22x1600000) off S1x3200.size p) (fun _ => rfl)).view.set]{fullShare} fx))) : sProp 𝕄)
      ⊢ inSlotV d L fx a sm n := by
  subst h
  rw [inSlotV_pos d L fx v]
  iintro ⟨%gold, %w, %hw, H⟩
  iexists _
  isplitr
  · ipureintro; exact inRow_fetch d L fx a gold w n hw
  · iexact H

set_option maxHeartbeats 4000000 in
/-- A write-out just issued from a flat staging buffer whose first 3200 elements are the staging row, itself piece
    `n` of the argument row: the piece of the result will hold the row's elements. -/
theorem fl_outV {off : Fin 1 → ℕ} {n : ℕ} (h : off = ![pos L n]) (p : ∀ a, off a + S3200.size a ≤ S1600000.size a) (v : valid L n)
    (ar : Memref sig .scVector .vmem S8x3200 .f32) (a : Memref sig .scVector .vmem S25600 .f32) (sm : DmaSem sig)
    (f0 : Buf (Elt F) ((oW).view.loc (thr d L))) (ga : Buf (Elt F) (ar.view.loc (thr d L))) (gb : Buf (Elt F) (a.view.loc (thr d L)))
    (hl : Lanes d L ar a ga gb 200) (hr : InRow d L fx ar ga n) :
    (iprop(∃ (w : S3200.Idx → Elt F .f32),
        ⌜∀ y, w y = (stg a).view.read (Elt F) gb y⌝
        ∗ Transfers.Flight countersEmb (thr d L) (SemLoc.dma sm) (default : HIx 22) NN
          iprop((((oW).slice (Rect.unit (s := S1600000) off S3200.size p) (fun _ => rfl)).view.loc (thr d L)
                ↦[((oW).slice (Rect.unit (s := S1600000) off S3200.size p) (fun _ => rfl)).view.set]{fullShare}
                  (((oW).slice (Rect.unit (s := S1600000) off S3200.size p) (fun _ => rfl)).view.writes (Elt F) f0 [⟨Rect.whole _, w⟩]))
            ∗ ((stg a).view.loc (thr d L) ↦[(stg a).view.set]{fullShare} gb))
        ∗ (a.view.loc (thr d L) ↦[Finset.univ \ (stg a).view.set]{fullShare} gb)) : sProp 𝕄)
      ⊢ outSlotV d L fx a sm (n + 2) := by
  subst h
  rw [outSlotV_pos d L fx (m := n + 2) ⟨by omega, by simpa using v⟩]
  iintro ⟨%w, %hw, H, R⟩
  have hD : (iprop(((outM L n).view.loc (thr d L) ↦[(outM L n).view.set]{fullShare} ((outM L n).view.writes (Elt F) f0 [⟨Rect.whole _, w⟩]))
          ∗ ((stg a).view.loc (thr d L) ↦[(stg a).view.set]{fullShare} gb)) : sProp 𝕄)
      ⊢ iprop(oqPiece d L fx (n + 2 - 2) ∗ ((stg a).view.loc (thr d L) ↦[(stg a).view.set]{fullShare} gb)) := by
    rw [Nat.add_sub_cancel]
    have e : (((outM L n).view.loc (thr d L) ↦[(outM L n).view.set]{fullShare} ((outM L n).view.writes (Elt F) f0 [⟨Rect.whole _, w⟩])) : sProp 𝕄)
        = oqPiece d L fx n := pointsTo_congr (out_written d L fx ar a n ga gb f0 w hw hl hr v)
    iintro ⟨H1, H2⟩
    isplitl [H1]
    · iapply (Entails.of_eq e); iexact H1
    · iexact H2
  iexists gb
  isplitl [H]
  · iapply (Transfers.Flight_mono countersEmb (thr d L) hD); iexact H
  · iexact R

/-- The result pieces outside the slots before trip `t`: those already written hold the row, the others some contents. -/
def oMix (t n : ℕ) : sProp 𝕄 := if n + 2 < 2 * t then oQ d L fx n else oP (F := F) d L n
theorem oMix_lt {t n : ℕ} (h : n + 2 < 2 * t) : oMix d L fx t n = oQ d L fx n := if_pos h
theorem oMix_ge {t n : ℕ} (h : ¬ n + 2 < 2 * t) : oMix d L fx t n = oP (F := F) d L n := if_neg h
theorem oMix_core (k : ℕ) : bigSep (oCore k) (oMix d L fx k) = bigSep (oCore k) (oMix d L fx (k + 1)) :=
  bigSep_congr fun n hn => by
    have hn' : n + 2 ≠ 2 * k ∧ n + 2 ≠ 2 * k + 1 ∧ n ≠ 2 * k ∧ n ≠ 2 * k + 1 := by
      simp only [oCore, Finset.mem_filter, Finset.mem_range] at hn; exact hn.2
    by_cases h : n + 2 < 2 * k
    · rw [oMix_lt d L fx h, oMix_lt d L fx (by omega)]
    · rw [oMix_ge d L fx h, oMix_ge d L fx (by omega)]
theorem oMix_zero : bigSep (oSet 0) (oMix d L fx 0) = bigSep (Finset.range 18) (oP (F := F) d L) := by
  rw [oSet_zero]; exact bigSep_congr fun n _ => oMix_ge d L fx (by omega)
theorem oMix_end : bigSep (oSet 8) (oMix d L fx 8) = bigSep (oSet 8) (oQ d L fx) :=
  bigSep_congr fun n hn => by
    have hn' : n < 18 ∧ n + 2 ≠ 16 ∧ n + 2 ≠ 17 := by simpa only [oSet, Finset.mem_filter, Finset.mem_range] using hn
    by_cases h : n + 2 < 2 * 8
    · exact oMix_lt d L fx h
    · rw [oMix_ge d L fx h, oP_neg (F := F) d L (by unfold valid; omega), oQ_neg d L fx (by unfold valid; omega)]

/-- The lane-copy loops: before trip `j` the first 16·j elements of the flat staging buffer are the staging row's. -/
def laneV0 (g4 : Buf (Elt F) ((a4).view.loc (thr d L))) (j : ℕ) (_ : PUnit) : sProp 𝕄 :=
  iprop(((a4).view.loc (thr d L) ↦{fullShare} g4) ∗ (∃ g, ((a6).view.loc (thr d L) ↦{fullShare} g) ∗ ⌜Lanes d L a4 a6 g4 g j⌝))
def laneV1 (g5 : Buf (Elt F) ((a5).view.loc (thr d L))) (j : ℕ) (_ : PUnit) : sProp 𝕄 :=
  iprop(((a5).view.loc (thr d L) ↦{fullShare} g5) ∗ (∃ g, ((a7).view.loc (thr d L) ↦{fullShare} g) ∗ ⌜Lanes d L a5 a7 g5 g j⌝))

def invV (t : ℕ) (_ : PUnit) : sProp 𝕄 :=
  iprop(Transfers.MayWaits (thr d L) (none : HIx 22) O
    ∗ (∃ W', ⌜∀ p ∈ W', p ∈ W ∨ p.2 = none⌝ ∗ owes (thr d L) O W')
    ∗ bigSep (xSet t) (xP d L fx) ∗ bigSep (oSet t) (oMix d L fx t)
    ∗ inSlotV d L fx a4 cc2_scratch4.sem (2 * t) ∗ outSlotV d L fx a6 cc2_scratch6.sem (2 * t)
    ∗ inSlotV d L fx a5 cc2_scratch5.sem (2 * t + 1) ∗ outSlotV d L fx a7 cc2_scratch7.sem (2 * t + 1))

/-- After the last trip nothing of the argument row is in a slot: the tile holds all its pieces. -/
theorem xRange_end : bigSep (xSet 8) (xP d L fx) ⊢ bigSep (Finset.range 18) (xP d L fx) := by
  rw [two_out (s := Finset.range 18) (a := 16) (b := 17) (by decide) (by decide) (by decide),
    show ((Finset.range 18).erase 16).erase 17 = xSet 8 by decide]
  iintro H
  isplitr; · iapply (Entails.of_eq (xP_neg d L fx (n := 16) (by unfold valid; omega)).symm); iempintro
  isplitr; · iapply (Entails.of_eq (xP_neg d L fx (n := 17) (by unfold valid; omega)).symm); iempintro
  iexact H
omit [FloatOps F] in
theorem oRange_end (Φ : ℕ → sProp 𝕄) : bigSep (Finset.range 18) Φ = iprop(Φ 14 ∗ Φ 15 ∗ bigSep (oSet 8) Φ) := by
  rw [two_out (s := Finset.range 18) (a := 14) (b := 15) (by decide) (by decide) (by decide),
    show ((Finset.range 18).erase 14).erase 15 = oSet 8 by decide]

/-- What the run starts from and ends with, beside an untouched rest `R`. -/
def runPre (R : sProp 𝕄) : sProp 𝕄 :=
    iprop(Transfers.MayWaits (thr d L) (none : HIx 22) O ∗ owes (thr d L) O W
        ∗ bigSep (Finset.range 18) (xP d L fx) ∗ bigSep (Finset.range 18) (oP (F := F) d L)
        ∗ (∃ g, (a4).view.loc (thr d L) ↦{fullShare} g) ∗ (∃ g, (a5).view.loc (thr d L) ↦{fullShare} g)
        ∗ (∃ g, (a6).view.loc (thr d L) ↦{fullShare} g) ∗ (∃ g, (a7).view.loc (thr d L) ↦{fullShare} g)
        ∗ semVal (thr d L, SemLoc.dma cc2_scratch4.sem) 0 ∗ semVal (thr d L, SemLoc.dma cc2_scratch5.sem) 0
        ∗ semVal (thr d L, SemLoc.dma cc2_scratch6.sem) 0 ∗ semVal (thr d L, SemLoc.dma cc2_scratch7.sem) 0 ∗ R)
def runPost (R : sProp 𝕄) : sProp 𝕄 :=
    iprop(bigSep (Finset.range 18) (xP d L fx) ∗ bigSep (Finset.range 18) (oQ d L fx)
            ∗ (∃ g, (a4).view.loc (thr d L) ↦{fullShare} g) ∗ (∃ g, (a5).view.loc (thr d L) ↦{fullShare} g)
            ∗ (∃ g, (a6).view.loc (thr d L) ↦{fullShare} g) ∗ (∃ g, (a7).view.loc (thr d L) ↦{fullShare} g)
            ∗ semVal (thr d L, SemLoc.dma cc2_scratch4.sem) 0 ∗ semVal (thr d L, SemLoc.dma cc2_scratch5.sem) 0
            ∗ semVal (thr d L, SemLoc.dma cc2_scratch6.sem) 0 ∗ semVal (thr d L, SemLoc.dma cc2_scratch7.sem) 0
            ∗ (∃ W', ⌜∀ p ∈ W', p ∈ W ∨ p.2 = none⌝ ∗ owes (thr d L) O W') ∗ R)

set_option maxHeartbeats 16000000 in
/-- The task's run: from its pieces of the argument row and of the result, the four staging buffers and the four
    semaphores at zero, to the same with every piece of the result holding the row's elements. -/
theorem tile_run (R : sProp 𝕄) :
    runPre d L O W fx R
      ⊢ wp frame (wpE (defs₀ (F := F)) 𝒱₀ (thr d L) none) Set.univ
          (cc2_sc_group L xtW (Memref.isWhole_whole _) oW (Memref.isWhole_whole _) a4 (Memref.isWhole_whole _) a5 (Memref.isWhole_whole _)
            a6 (Memref.isWhole_whole _) a7 (Memref.isWhole_whole _) cc2_scratch4 cc2_scratch5 cc2_scratch6 cc2_scratch7)
          fun _ => runPost d L O W fx R := by
  unfold runPre runPost
  have v0 : valid L 0 := Or.inl (by omega)
  have v1 : valid L 1 := Or.inl (by omega)
  have k2_h7 : k2_cond7 L = 1#1 := cond7_iff L
  iintro ⟨#Hmw, HO, HX, HOut, ⟨%g4, H4⟩, ⟨%g5, H5⟩, ⟨%g6, H6⟩, ⟨%g7, H7⟩, Hs8, Hs9, Hs10, Hs11, HR⟩
  ihave HX := (Entails.of_eq (xRange_split d L fx v0 v1)) $$ HX
  icases HX with ⟨X0, X1, HX⟩
  ihave X0 := (Entails.of_eq (in_congr d L (off_in0 L v0).symm (in_inb L _) (k2_off1_inb L 0) fx)) $$ X0
  ihave X1 := (Entails.of_eq (in_congr d L (off_in1 L v1).symm (in_inb L _) (k2_off1_inb L 1) fx)) $$ X1
  sl_unfold [cc2_sc_group]
  sl_exec
  ihave S8 := (fl_inV d L fx (off_in0 L v0) (k2_off1_inb L 0) v0 a4 cc2_scratch4.sem) $$ [Hs8]
  · iexists _, _
    isplitr
    rotate_left
    · iexact Hs8
    ipureintro; intro y; rfl
  ihave S9 := (fl_inV d L fx (off_in1 L v1) (k2_off1_inb L 1) v1 a5 cc2_scratch5.sem) $$ [Hs9]
  · iexists _, _
    isplitr
    rotate_left
    · iexact Hs9
    ipureintro; intro y; rfl
  sl_for (invV d L O W fx) $$ [HO HX HOut S8 S9 H6 H7 Hs10 Hs11]
  case region =>
    intro (k : Fin k2_t1_loop.trips) acc
    have hk : k.val < 8 := Nat.lt_of_lt_of_eq k.isLt trips1
    unfold invV
    iintro ⟨#Hmw, ⟨%W', %hW', HO⟩, HX, HOut, S8, S10, S9, S11⟩
    by_cases hk1 : 1 ≤ k.val
    · by_cases v3 : valid L (2 * k.val + 3)
      · -- the generic trip: both drains, both pieces worked, both next fetches issued
        have hk6 : k.val ≤ 6 := by unfold valid at v3; omega
        have k2_h1 : k2_cond1 k = 1#1 := (cond1_iff k).mpr (by omega)
        have k2_h2 : k2_cond2 L k = 1#1 := cond2_iff L k
        have k2_h3 : k2_cond3 L k = 1#1 := (cond3_iff L k).mpr (by omega)
        have k2_h4 : k2_cond4 k = 1#1 := (cond4_iff k).mpr (by omega)
        have k2_h5 : k2_cond5 L k = 1#1 := (cond5_iff L k).mpr (by first | (unfold valid big at *; omega) | (unfold big at *; omega) | omega)
        have k2_h6 : k2_cond6 L k = 1#1 := (cond6_iff L k).mpr (by first | (unfold valid big at *; omega) | (unfold big at *; omega) | omega)
        have v0 : valid L (2 * k.val) := by unfold valid big at *; omega
        have v1 : valid L (2 * k.val + 1) := by unfold valid big at *; omega
        have v2 : valid L (2 * k.val + 2) := by unfold valid big at *; omega
        have v3' : valid L (2 * k.val + 3) := by unfold valid big at *; omega
        have hm0 : 2 ≤ 2 * k.val ∧ valid L (2 * k.val - 2) := ⟨by omega, by unfold valid big at *; omega⟩
        have hm1 : 2 ≤ 2 * k.val + 1 ∧ valid L (2 * k.val + 1 - 2) := ⟨by omega, by unfold valid big at *; omega⟩
        ihave S8 := (Entails.of_eq (inSlotV_pos d L fx v0)) $$ S8
        icases S8 with ⟨%g4, %hin4, F8⟩
        ihave S9 := (Entails.of_eq (inSlotV_pos d L fx v1)) $$ S9
        icases S9 with ⟨%g5, %hin5, F9⟩
        ihave S10 := (Entails.of_eq (outSlotV_pos d L fx hm0)) $$ S10
        icases S10 with ⟨%g6, F10, R6⟩
        ihave S11 := (Entails.of_eq (outSlotV_pos d L fx hm1)) $$ S11
        icases S11 with ⟨%g7, F11, R7⟩
        ihave HX := (Entails.of_eq (xSet_out (xP d L fx) k.val hk)) $$ HX
        icases HX with ⟨X2, X3, HX⟩
        ihave X2 := (Entails.of_eq (xP_pos d L fx v2)) $$ X2
        ihave X2 := (Entails.of_eq (in_congr d L (off_6 L k v2).symm (in_inb L _) (k2_off6_inb L k k2_h3) fx)) $$ X2
        ihave X3 := (Entails.of_eq (xP_pos d L fx v3')) $$ X3
        ihave X3 := (Entails.of_eq (in_congr d L (off_11 L k v3').symm (in_inb L _) (k2_off11_inb L k k2_h6) fx)) $$ X3
        ihave HOut := (Entails.of_eq (oSet_out (oMix d L fx k.val) k.val hk)) $$ HOut
        icases HOut with ⟨Y0, Y1, HOut⟩
        ihave Y0 := (Entails.of_eq ((oMix_ge d L fx (t := k.val) (n := 2 * k.val) (by omega)).trans (oP_pos (F := F) d L v0))) $$ Y0
        icases Y0 with ⟨%f0, Y0⟩
        ihave Y0 := (Entails.of_eq (out_congr d L (off_5 L k v0).symm (out_inb L _) (k2_off5_inb L k k2_h2) f0)) $$ Y0
        ihave Y1 := (Entails.of_eq ((oMix_ge d L fx (t := k.val) (n := 2 * k.val + 1) (by omega)).trans (oP_pos (F := F) d L v1))) $$ Y1
        icases Y1 with ⟨%f1, Y1⟩
        ihave Y1 := (Entails.of_eq (out_congr d L (off_10 L k v1).symm (out_inb L _) (k2_off10_inb L k k2_h5) f1)) $$ Y1
        sl_exec
        sl_for (laneV0 d L g4) $$ [F8_dst R6]
        case region =>
          intro (j : Fin k2_t2_loop.trips) _
          unfold laneV0
          iintro ⟨HA, %g, HB, %hl⟩
          sl_exec
          sl_step
          isplitl [HA]; · iexact HA
          iexists _; isplitl [HB]; · iexact HB
          ipureintro; exact lanes_step d L a4 a6 g4 g j _ _ hl
        · unfold laneV0
          isplitl [F8_dst]; · iexact F8_dst
          iexists _; isplitl [R6]; · iexact R6
          ipureintro; exact lanes_zero d L a4 a6 g4 _
        iintro %_ HI
        unfold laneV0
        icases HI with ⟨H4, %g6', H6, %hl6⟩
        have hl6 : Lanes d L a4 a6 g4 g6' 200 := Eq.mp (congrArg (Lanes d L a4 a6 g4 g6') trips2) hl6
        sl_exec
        sl_for (laneV1 d L g5) $$ [F9_dst R7]
        case region =>
          intro (j : Fin k2_t3_loop.trips) _
          unfold laneV1
          iintro ⟨HA, %g, HB, %hl⟩
          sl_exec
          sl_step
          isplitl [HA]; · iexact HA
          iexists _; isplitl [HB]; · iexact HB
          ipureintro; exact lanes_step' d L a5 a7 g5 g j _ _ hl
        · unfold laneV1
          isplitl [F9_dst]; · iexact F9_dst
          iexists _; isplitl [R7]; · iexact R7
          ipureintro; exact lanes_zero d L a5 a7 g5 _
        iintro %_ HI
        unfold laneV1
        icases HI with ⟨H5, %g7', H7, %hl7⟩
        have hl7 : Lanes d L a5 a7 g5 g7' 200 := Eq.mp (congrArg (Lanes d L a5 a7 g5 g7') trips3) hl7
        sl_exec
        sl_step
        isplitr; · iexact Hmw
        isplitl [HO]
        · iexists _; isplitr
          rotate_left
          · iexact HO
          ipureintro; intro p hp
          rcases Finset.mem_insert.mp hp with rfl | hp
          · exact .inr rfl
          rcases Finset.mem_insert.mp hp with rfl | hp
          · exact .inr rfl
          rcases Finset.mem_insert.mp hp with rfl | hp
          · exact .inr rfl
          rcases Finset.mem_insert.mp hp with rfl | hp
          · exact .inr rfl
          exact hW' p hp
        isplitl [HX F8_src F9_src]
        · iapply (Entails.of_eq (xSet_in (xP d L fx) k.val hk).symm)
          isplitl [F8_src]; · iapply (Entails.of_eq (xP_pos d L fx v0).symm); iexact F8_src
          isplitl [F9_src]; · iapply (Entails.of_eq (xP_pos d L fx v1).symm); iexact F9_src
          iexact HX
        isplitl [HOut F10_dst F11_dst]
        · iapply (Entails.of_eq (oSet_in (oMix d L fx (k.val + 1)) k.val hk (by omega)).symm)
          isplitl [F10_dst]; · iapply (Entails.of_eq ((oMix_lt d L fx (t := k.val + 1) (n := 2 * k.val - 2) (by omega)).trans (oQ_pos d L fx hm0.2)).symm); iexact F10_dst
          isplitl [F11_dst]
          · iapply (Entails.of_eq ((oMix_lt d L fx (t := k.val + 1) (n := 2 * k.val - 1) (by omega)).trans (oQ_pos d L fx (n := 2 * k.val - 1) (by have := hm1.2; rwa [show 2 * k.val + 1 - 2 = 2 * k.val - 1 by omega] at this))).symm)
            iapply (Entails.of_eq (congrArg (oqPiece d L fx) (show 2 * k.val + 1 - 2 = 2 * k.val - 1 by omega))); iexact F11_dst
          iapply (Entails.of_eq (oMix_core d L fx k.val)); iexact HOut
        isplitl [F8]
        · iapply (Entails.of_eq (congrArg (inSlotV d L fx a4 cc2_scratch4.sem) (show 2 * k.val + 2 = 2 * (k.val + 1) by ring)))
          iapply (fl_inV d L fx (off_6 L k v2) (k2_off6_inb L k k2_h3) v2 a4 cc2_scratch4.sem); iexists _, _
          isplitr
          rotate_left
          · iexact F8
          ipureintro; intro y; rfl
        isplitl [F10 H6]
        · iapply (Entails.of_eq (congrArg (outSlotV d L fx a6 cc2_scratch6.sem) (show 2 * k.val + 2 = 2 * (k.val + 1) by ring)))
          iapply (fl_outV d L fx (off_5 L k v0) (k2_off5_inb L k k2_h2) v0 a4 a6 cc2_scratch6.sem f0 g4 g6' hl6 hin4); iexists _
          isplitr
          rotate_left
          · isplitl [F10]; · iexact F10
            iexact H6
          ipureintro; intro y; rfl
        isplitl [F9]
        · iapply (Entails.of_eq (congrArg (inSlotV d L fx a5 cc2_scratch5.sem) (show 2 * k.val + 3 = 2 * (k.val + 1) + 1 by ring)))
          iapply (fl_inV d L fx (off_11 L k v3') (k2_off11_inb L k k2_h6) v3' a5 cc2_scratch5.sem); iexists _, _
          isplitr
          rotate_left
          · iexact F9
          ipureintro; intro y; rfl
        · iapply (Entails.of_eq (congrArg (outSlotV d L fx a7 cc2_scratch7.sem) (show 2 * k.val + 1 + 2 = 2 * (k.val + 1) + 1 by ring)))
          iapply (fl_outV d L fx (off_10 L k v1) (k2_off10_inb L k k2_h5) v1 a5 a7 cc2_scratch7.sem f1 g5 g7' hl7 hin5); iexists _
          isplitr
          rotate_left
          · isplitl [F11]; · iexact F11
            iexact H7
          ipureintro; intro y; rfl
      · by_cases h6 : k.val = 6
        · have hb : ¬ big L := fun hb => v3 (Or.inr ⟨by omega, hb⟩)
          -- trip 6 of a tile with fifteen pieces: no sixteenth piece to fetch
          have k2_h1 : k2_cond1 k = 1#1 := (cond1_iff k).mpr (by omega)
          have k2_h2 : k2_cond2 L k = 1#1 := cond2_iff L k
          have k2_h3 : k2_cond3 L k = 1#1 := (cond3_iff L k).mpr (by omega)
          have k2_h4 : k2_cond4 k = 1#1 := (cond4_iff k).mpr (by omega)
          have k2_h5 : k2_cond5 L k = 1#1 := (cond5_iff L k).mpr (by first | (unfold valid big at *; omega) | (unfold big at *; omega) | omega)
          have k2_h6 : ¬ k2_cond6 L k = 1#1 := fun h => absurd ((cond6_iff L k).mp h) (by first | (unfold valid big at *; omega) | (unfold big at *; omega) | omega)
          have v0 : valid L (2 * k.val) := by unfold valid big at *; omega
          have v1 : valid L (2 * k.val + 1) := by unfold valid big at *; omega
          have v2 : valid L (2 * k.val + 2) := by unfold valid big at *; omega
          have v3' : ¬ valid L (2 * k.val + 3) := by unfold valid big at *; omega
          have hm0 : 2 ≤ 2 * k.val ∧ valid L (2 * k.val - 2) := ⟨by omega, by unfold valid big at *; omega⟩
          have hm1 : 2 ≤ 2 * k.val + 1 ∧ valid L (2 * k.val + 1 - 2) := ⟨by omega, by unfold valid big at *; omega⟩
          ihave S8 := (Entails.of_eq (inSlotV_pos d L fx v0)) $$ S8
          icases S8 with ⟨%g4, %hin4, F8⟩
          ihave S9 := (Entails.of_eq (inSlotV_pos d L fx v1)) $$ S9
          icases S9 with ⟨%g5, %hin5, F9⟩
          ihave S10 := (Entails.of_eq (outSlotV_pos d L fx hm0)) $$ S10
          icases S10 with ⟨%g6, F10, R6⟩
          ihave S11 := (Entails.of_eq (outSlotV_pos d L fx hm1)) $$ S11
          icases S11 with ⟨%g7, F11, R7⟩
          ihave HX := (Entails.of_eq (xSet_out (xP d L fx) k.val hk)) $$ HX
          icases HX with ⟨X2, -, HX⟩
          ihave X2 := (Entails.of_eq (xP_pos d L fx v2)) $$ X2
          ihave X2 := (Entails.of_eq (in_congr d L (off_6 L k v2).symm (in_inb L _) (k2_off6_inb L k k2_h3) fx)) $$ X2
          ihave HOut := (Entails.of_eq (oSet_out (oMix d L fx k.val) k.val hk)) $$ HOut
          icases HOut with ⟨Y0, Y1, HOut⟩
          ihave Y0 := (Entails.of_eq ((oMix_ge d L fx (t := k.val) (n := 2 * k.val) (by omega)).trans (oP_pos (F := F) d L v0))) $$ Y0
          icases Y0 with ⟨%f0, Y0⟩
          ihave Y0 := (Entails.of_eq (out_congr d L (off_5 L k v0).symm (out_inb L _) (k2_off5_inb L k k2_h2) f0)) $$ Y0
          ihave Y1 := (Entails.of_eq ((oMix_ge d L fx (t := k.val) (n := 2 * k.val + 1) (by omega)).trans (oP_pos (F := F) d L v1))) $$ Y1
          icases Y1 with ⟨%f1, Y1⟩
          ihave Y1 := (Entails.of_eq (out_congr d L (off_10 L k v1).symm (out_inb L _) (k2_off10_inb L k k2_h5) f1)) $$ Y1
          sl_exec
          sl_for (laneV0 d L g4) $$ [F8_dst R6]
          case region =>
            intro (j : Fin k2_t2_loop.trips) _
            unfold laneV0
            iintro ⟨HA, %g, HB, %hl⟩
            sl_exec
            sl_step
            isplitl [HA]; · iexact HA
            iexists _; isplitl [HB]; · iexact HB
            ipureintro; exact lanes_step d L a4 a6 g4 g j _ _ hl
          · unfold laneV0
            isplitl [F8_dst]; · iexact F8_dst
            iexists _; isplitl [R6]; · iexact R6
            ipureintro; exact lanes_zero d L a4 a6 g4 _
          iintro %_ HI
          unfold laneV0
          icases HI with ⟨H4, %g6', H6, %hl6⟩
          have hl6 : Lanes d L a4 a6 g4 g6' 200 := Eq.mp (congrArg (Lanes d L a4 a6 g4 g6') trips2) hl6
          sl_exec
          sl_for (laneV1 d L g5) $$ [F9_dst R7]
          case region =>
            intro (j : Fin k2_t3_loop.trips) _
            unfold laneV1
            iintro ⟨HA, %g, HB, %hl⟩
            sl_exec
            sl_step
            isplitl [HA]; · iexact HA
            iexists _; isplitl [HB]; · iexact HB
            ipureintro; exact lanes_step' d L a5 a7 g5 g j _ _ hl
          · unfold laneV1
            isplitl [F9_dst]; · iexact F9_dst
            iexists _; isplitl [R7]; · iexact R7
            ipureintro; exact lanes_zero d L a5 a7 g5 _
          iintro %_ HI
          unfold laneV1
          icases HI with ⟨H5, %g7', H7, %hl7⟩
          have hl7 : Lanes d L a5 a7 g5 g7' 200 := Eq.mp (congrArg (Lanes d L a5 a7 g5 g7') trips3) hl7
          sl_exec
          sl_step
          isplitr; · iexact Hmw
          isplitl [HO]
          · iexists _; isplitr
            rotate_left
            · iexact HO
            ipureintro; intro p hp
            rcases Finset.mem_insert.mp hp with rfl | hp
            · exact .inr rfl
            rcases Finset.mem_insert.mp hp with rfl | hp
            · exact .inr rfl
            rcases Finset.mem_insert.mp hp with rfl | hp
            · exact .inr rfl
            rcases Finset.mem_insert.mp hp with rfl | hp
            · exact .inr rfl
            exact hW' p hp
          isplitl [HX F8_src F9_src]
          · iapply (Entails.of_eq (xSet_in (xP d L fx) k.val hk).symm)
            isplitl [F8_src]; · iapply (Entails.of_eq (xP_pos d L fx v0).symm); iexact F8_src
            isplitl [F9_src]; · iapply (Entails.of_eq (xP_pos d L fx v1).symm); iexact F9_src
            iexact HX
          isplitl [HOut F10_dst F11_dst]
          · iapply (Entails.of_eq (oSet_in (oMix d L fx (k.val + 1)) k.val hk (by omega)).symm)
            isplitl [F10_dst]; · iapply (Entails.of_eq ((oMix_lt d L fx (t := k.val + 1) (n := 2 * k.val - 2) (by omega)).trans (oQ_pos d L fx hm0.2)).symm); iexact F10_dst
            isplitl [F11_dst]
            · iapply (Entails.of_eq ((oMix_lt d L fx (t := k.val + 1) (n := 2 * k.val - 1) (by omega)).trans (oQ_pos d L fx (n := 2 * k.val - 1) (by have := hm1.2; rwa [show 2 * k.val + 1 - 2 = 2 * k.val - 1 by omega] at this))).symm)
              iapply (Entails.of_eq (congrArg (oqPiece d L fx) (show 2 * k.val + 1 - 2 = 2 * k.val - 1 by omega))); iexact F11_dst
            iapply (Entails.of_eq (oMix_core d L fx k.val)); iexact HOut
          isplitl [F8]
          · iapply (Entails.of_eq (congrArg (inSlotV d L fx a4 cc2_scratch4.sem) (show 2 * k.val + 2 = 2 * (k.val + 1) by ring)))
            iapply (fl_inV d L fx (off_6 L k v2) (k2_off6_inb L k k2_h3) v2 a4 cc2_scratch4.sem); iexists _, _
            isplitr
            rotate_left
            · iexact F8
            ipureintro; intro y; rfl
          isplitl [F10 H6]
          · iapply (Entails.of_eq (congrArg (outSlotV d L fx a6 cc2_scratch6.sem) (show 2 * k.val + 2 = 2 * (k.val + 1) by ring)))
            iapply (fl_outV d L fx (off_5 L k v0) (k2_off5_inb L k k2_h2) v0 a4 a6 cc2_scratch6.sem f0 g4 g6' hl6 hin4); iexists _
            isplitr
            rotate_left
            · isplitl [F10]; · iexact F10
              iexact H6
            ipureintro; intro y; rfl
          isplitl [H5 F9]
          · iapply (Entails.of_eq (congrArg (inSlotV d L fx a5 cc2_scratch5.sem) (show 2 * k.val + 3 = 2 * (k.val + 1) + 1 by ring)))
            iapply (Entails.of_eq (inSlotV_neg d L fx v3').symm)
            isplitl [H5]; · iexists _; iexact H5
            iexact F9
          · iapply (Entails.of_eq (congrArg (outSlotV d L fx a7 cc2_scratch7.sem) (show 2 * k.val + 1 + 2 = 2 * (k.val + 1) + 1 by ring)))
            iapply (fl_outV d L fx (off_10 L k v1) (k2_off10_inb L k k2_h5) v1 a5 a7 cc2_scratch7.sem f1 g5 g7' hl7 hin5); iexists _
            isplitr
            rotate_left
            · isplitl [F11]; · iexact F11
              iexact H7
            ipureintro; intro y; rfl
        · have h7 : k.val = 7 := by unfold valid at v3; omega
          by_cases hb : big L
          · -- the last trip of a tile with sixteen pieces: nothing more to fetch
            have k2_h1 : k2_cond1 k = 1#1 := (cond1_iff k).mpr (by omega)
            have k2_h2 : k2_cond2 L k = 1#1 := cond2_iff L k
            have k2_h3 : ¬ k2_cond3 L k = 1#1 := fun h => absurd ((cond3_iff L k).mp h) (by omega)
            have k2_h4 : k2_cond4 k = 1#1 := (cond4_iff k).mpr (by omega)
            have k2_h5 : k2_cond5 L k = 1#1 := (cond5_iff L k).mpr (by first | (unfold valid big at *; omega) | (unfold big at *; omega) | omega)
            have k2_h6 : ¬ k2_cond6 L k = 1#1 := fun h => absurd ((cond6_iff L k).mp h) (by first | (unfold valid big at *; omega) | (unfold big at *; omega) | omega)
            have v0 : valid L (2 * k.val) := by unfold valid big at *; omega
            have v1 : valid L (2 * k.val + 1) := by unfold valid big at *; omega
            have v2 : ¬ valid L (2 * k.val + 2) := by unfold valid big at *; omega
            have v3' : ¬ valid L (2 * k.val + 3) := by unfold valid big at *; omega
            have hm0 : 2 ≤ 2 * k.val ∧ valid L (2 * k.val - 2) := ⟨by omega, by unfold valid big at *; omega⟩
            have hm1 : 2 ≤ 2 * k.val + 1 ∧ valid L (2 * k.val + 1 - 2) := ⟨by omega, by unfold valid big at *; omega⟩
            ihave S8 := (Entails.of_eq (inSlotV_pos d L fx v0)) $$ S8
            icases S8 with ⟨%g4, %hin4, F8⟩
            ihave S9 := (Entails.of_eq (inSlotV_pos d L fx v1)) $$ S9
            icases S9 with ⟨%g5, %hin5, F9⟩
            ihave S10 := (Entails.of_eq (outSlotV_pos d L fx hm0)) $$ S10
            icases S10 with ⟨%g6, F10, R6⟩
            ihave S11 := (Entails.of_eq (outSlotV_pos d L fx hm1)) $$ S11
            icases S11 with ⟨%g7, F11, R7⟩
            ihave HX := (Entails.of_eq (xSet_out (xP d L fx) k.val hk)) $$ HX
            icases HX with ⟨-, -, HX⟩
            ihave HOut := (Entails.of_eq (oSet_out (oMix d L fx k.val) k.val hk)) $$ HOut
            icases HOut with ⟨Y0, Y1, HOut⟩
            ihave Y0 := (Entails.of_eq ((oMix_ge d L fx (t := k.val) (n := 2 * k.val) (by omega)).trans (oP_pos (F := F) d L v0))) $$ Y0
            icases Y0 with ⟨%f0, Y0⟩
            ihave Y0 := (Entails.of_eq (out_congr d L (off_5 L k v0).symm (out_inb L _) (k2_off5_inb L k k2_h2) f0)) $$ Y0
            ihave Y1 := (Entails.of_eq ((oMix_ge d L fx (t := k.val) (n := 2 * k.val + 1) (by omega)).trans (oP_pos (F := F) d L v1))) $$ Y1
            icases Y1 with ⟨%f1, Y1⟩
            ihave Y1 := (Entails.of_eq (out_congr d L (off_10 L k v1).symm (out_inb L _) (k2_off10_inb L k k2_h5) f1)) $$ Y1
            sl_exec
            sl_for (laneV0 d L g4) $$ [F8_dst R6]
            case region =>
              intro (j : Fin k2_t2_loop.trips) _
              unfold laneV0
              iintro ⟨HA, %g, HB, %hl⟩
              sl_exec
              sl_step
              isplitl [HA]; · iexact HA
              iexists _; isplitl [HB]; · iexact HB
              ipureintro; exact lanes_step d L a4 a6 g4 g j _ _ hl
            · unfold laneV0
              isplitl [F8_dst]; · iexact F8_dst
              iexists _; isplitl [R6]; · iexact R6
              ipureintro; exact lanes_zero d L a4 a6 g4 _
            iintro %_ HI
            unfold laneV0
            icases HI with ⟨H4, %g6', H6, %hl6⟩
            have hl6 : Lanes d L a4 a6 g4 g6' 200 := Eq.mp (congrArg (Lanes d L a4 a6 g4 g6') trips2) hl6
            sl_exec
            sl_for (laneV1 d L g5) $$ [F9_dst R7]
            case region =>
              intro (j : Fin k2_t3_loop.trips) _
              unfold laneV1
              iintro ⟨HA, %g, HB, %hl⟩
              sl_exec
              sl_step
              isplitl [HA]; · iexact HA
              iexists _; isplitl [HB]; · iexact HB
              ipureintro; exact lanes_step' d L a5 a7 g5 g j _ _ hl
            · unfold laneV1
              isplitl [F9_dst]; · iexact F9_dst
              iexists _; isplitl [R7]; · iexact R7
              ipureintro; exact lanes_zero d L a5 a7 g5 _
            iintro %_ HI
            unfold laneV1
            icases HI with ⟨H5, %g7', H7, %hl7⟩
            have hl7 : Lanes d L a5 a7 g5 g7' 200 := Eq.mp (congrArg (Lanes d L a5 a7 g5 g7') trips3) hl7
            sl_exec
            sl_step
            isplitr; · iexact Hmw
            isplitl [HO]
            · iexists _; isplitr
              rotate_left
              · iexact HO
              ipureintro; intro p hp
              rcases Finset.mem_insert.mp hp with rfl | hp
              · exact .inr rfl
              rcases Finset.mem_insert.mp hp with rfl | hp
              · exact .inr rfl
              rcases Finset.mem_insert.mp hp with rfl | hp
              · exact .inr rfl
              rcases Finset.mem_insert.mp hp with rfl | hp
              · exact .inr rfl
              exact hW' p hp
            isplitl [HX F8_src F9_src]
            · iapply (Entails.of_eq (xSet_in (xP d L fx) k.val hk).symm)
              isplitl [F8_src]; · iapply (Entails.of_eq (xP_pos d L fx v0).symm); iexact F8_src
              isplitl [F9_src]; · iapply (Entails.of_eq (xP_pos d L fx v1).symm); iexact F9_src
              iexact HX
            isplitl [HOut F10_dst F11_dst]
            · iapply (Entails.of_eq (oSet_in (oMix d L fx (k.val + 1)) k.val hk (by omega)).symm)
              isplitl [F10_dst]; · iapply (Entails.of_eq ((oMix_lt d L fx (t := k.val + 1) (n := 2 * k.val - 2) (by omega)).trans (oQ_pos d L fx hm0.2)).symm); iexact F10_dst
              isplitl [F11_dst]
              · iapply (Entails.of_eq ((oMix_lt d L fx (t := k.val + 1) (n := 2 * k.val - 1) (by omega)).trans (oQ_pos d L fx (n := 2 * k.val - 1) (by have := hm1.2; rwa [show 2 * k.val + 1 - 2 = 2 * k.val - 1 by omega] at this))).symm)
                iapply (Entails.of_eq (congrArg (oqPiece d L fx) (show 2 * k.val + 1 - 2 = 2 * k.val - 1 by omega))); iexact F11_dst
              iapply (Entails.of_eq (oMix_core d L fx k.val)); iexact HOut
            isplitl [H4 F8]
            · iapply (Entails.of_eq (congrArg (inSlotV d L fx a4 cc2_scratch4.sem) (show 2 * k.val + 2 = 2 * (k.val + 1) by ring)))
              iapply (Entails.of_eq (inSlotV_neg d L fx v2).symm)
              isplitl [H4]; · iexists _; iexact H4
              iexact F8
            isplitl [F10 H6]
            · iapply (Entails.of_eq (congrArg (outSlotV d L fx a6 cc2_scratch6.sem) (show 2 * k.val + 2 = 2 * (k.val + 1) by ring)))
              iapply (fl_outV d L fx (off_5 L k v0) (k2_off5_inb L k k2_h2) v0 a4 a6 cc2_scratch6.sem f0 g4 g6' hl6 hin4); iexists _
              isplitr
              rotate_left
              · isplitl [F10]; · iexact F10
                iexact H6
              ipureintro; intro y; rfl
            isplitl [H5 F9]
            · iapply (Entails.of_eq (congrArg (inSlotV d L fx a5 cc2_scratch5.sem) (show 2 * k.val + 3 = 2 * (k.val + 1) + 1 by ring)))
              iapply (Entails.of_eq (inSlotV_neg d L fx v3').symm)
              isplitl [H5]; · iexists _; iexact H5
              iexact F9
            · iapply (Entails.of_eq (congrArg (outSlotV d L fx a7 cc2_scratch7.sem) (show 2 * k.val + 1 + 2 = 2 * (k.val + 1) + 1 by ring)))
              iapply (fl_outV d L fx (off_10 L k v1) (k2_off10_inb L k k2_h5) v1 a5 a7 cc2_scratch7.sem f1 g5 g7' hl7 hin5); iexists _
              isplitr
              rotate_left
              · isplitl [F11]; · iexact F11
                iexact H7
              ipureintro; intro y; rfl
          · -- the last trip of a tile with fifteen pieces: the second slot only drains
            have k2_h1 : k2_cond1 k = 1#1 := (cond1_iff k).mpr (by omega)
            have k2_h2 : k2_cond2 L k = 1#1 := cond2_iff L k
            have k2_h3 : ¬ k2_cond3 L k = 1#1 := fun h => absurd ((cond3_iff L k).mp h) (by omega)
            have k2_h4 : k2_cond4 k = 1#1 := (cond4_iff k).mpr (by omega)
            have k2_h5 : ¬ k2_cond5 L k = 1#1 := fun h => absurd ((cond5_iff L k).mp h) (by first | (unfold valid big at *; omega) | (unfold big at *; omega) | omega)
            have k2_h6 : ¬ k2_cond6 L k = 1#1 := fun h => absurd ((cond6_iff L k).mp h) (by first | (unfold valid big at *; omega) | (unfold big at *; omega) | omega)
            have v0 : valid L (2 * k.val) := by unfold valid big at *; omega
            have v1 : ¬ valid L (2 * k.val + 1) := by unfold valid big at *; omega
            have v2 : ¬ valid L (2 * k.val + 2) := by unfold valid big at *; omega
            have v3' : ¬ valid L (2 * k.val + 3) := by unfold valid big at *; omega
            have hm0 : 2 ≤ 2 * k.val ∧ valid L (2 * k.val - 2) := ⟨by omega, by unfold valid big at *; omega⟩
            have hm1 : 2 ≤ 2 * k.val + 1 ∧ valid L (2 * k.val + 1 - 2) := ⟨by omega, by unfold valid big at *; omega⟩
            ihave S8 := (Entails.of_eq (inSlotV_pos d L fx v0)) $$ S8
            icases S8 with ⟨%g4, %hin4, F8⟩
            ihave S9 := (Entails.of_eq (inSlotV_neg d L fx v1)) $$ S9
            icases S9 with ⟨⟨%g5, H5⟩, F9⟩
            ihave S10 := (Entails.of_eq (outSlotV_pos d L fx hm0)) $$ S10
            icases S10 with ⟨%g6, F10, R6⟩
            ihave S11 := (Entails.of_eq (outSlotV_pos d L fx hm1)) $$ S11
            icases S11 with ⟨%g7, F11, R7⟩
            ihave HX := (Entails.of_eq (xSet_out (xP d L fx) k.val hk)) $$ HX
            icases HX with ⟨-, -, HX⟩
            ihave HOut := (Entails.of_eq (oSet_out (oMix d L fx k.val) k.val hk)) $$ HOut
            icases HOut with ⟨Y0, -, HOut⟩
            ihave Y0 := (Entails.of_eq ((oMix_ge d L fx (t := k.val) (n := 2 * k.val) (by omega)).trans (oP_pos (F := F) d L v0))) $$ Y0
            icases Y0 with ⟨%f0, Y0⟩
            ihave Y0 := (Entails.of_eq (out_congr d L (off_5 L k v0).symm (out_inb L _) (k2_off5_inb L k k2_h2) f0)) $$ Y0
            sl_exec
            sl_for (laneV0 d L g4) $$ [F8_dst R6]
            case region =>
              intro (j : Fin k2_t2_loop.trips) _
              unfold laneV0
              iintro ⟨HA, %g, HB, %hl⟩
              sl_exec
              sl_step
              isplitl [HA]; · iexact HA
              iexists _; isplitl [HB]; · iexact HB
              ipureintro; exact lanes_step d L a4 a6 g4 g j _ _ hl
            · unfold laneV0
              isplitl [F8_dst]; · iexact F8_dst
              iexists _; isplitl [R6]; · iexact R6
              ipureintro; exact lanes_zero d L a4 a6 g4 _
            iintro %_ HI
            unfold laneV0
            icases HI with ⟨H4, %g6', H6, %hl6⟩
            have hl6 : Lanes d L a4 a6 g4 g6' 200 := Eq.mp (congrArg (Lanes d L a4 a6 g4 g6') trips2) hl6
            sl_exec
            sl_step
            isplitr; · iexact Hmw
            isplitl [HO]
            · iexists _; isplitr
              rotate_left
              · iexact HO
              ipureintro; intro p hp
              rcases Finset.mem_insert.mp hp with rfl | hp
              · exact .inr rfl
              rcases Finset.mem_insert.mp hp with rfl | hp
              · exact .inr rfl
              rcases Finset.mem_insert.mp hp with rfl | hp
              · exact .inr rfl
              exact hW' p hp
            isplitl [HX F8_src]
            · iapply (Entails.of_eq (xSet_in (xP d L fx) k.val hk).symm)
              isplitl [F8_src]; · iapply (Entails.of_eq (xP_pos d L fx v0).symm); iexact F8_src
              isplitr; · iapply (Entails.of_eq (xP_neg d L fx v1).symm); iempintro
              iexact HX
            isplitl [HOut F10_dst F11_dst]
            · iapply (Entails.of_eq (oSet_in (oMix d L fx (k.val + 1)) k.val hk (by omega)).symm)
              isplitl [F10_dst]; · iapply (Entails.of_eq ((oMix_lt d L fx (t := k.val + 1) (n := 2 * k.val - 2) (by omega)).trans (oQ_pos d L fx hm0.2)).symm); iexact F10_dst
              isplitl [F11_dst]
              · iapply (Entails.of_eq ((oMix_lt d L fx (t := k.val + 1) (n := 2 * k.val - 1) (by omega)).trans (oQ_pos d L fx (n := 2 * k.val - 1) (by have := hm1.2; rwa [show 2 * k.val + 1 - 2 = 2 * k.val - 1 by omega] at this))).symm)
                iapply (Entails.of_eq (congrArg (oqPiece d L fx) (show 2 * k.val + 1 - 2 = 2 * k.val - 1 by omega))); iexact F11_dst
              iapply (Entails.of_eq (oMix_core d L fx k.val)); iexact HOut
            isplitl [H4 F8]
            · iapply (Entails.of_eq (congrArg (inSlotV d L fx a4 cc2_scratch4.sem) (show 2 * k.val + 2 = 2 * (k.val + 1) by ring)))
              iapply (Entails.of_eq (inSlotV_neg d L fx v2).symm)
              isplitl [H4]; · iexists _; iexact H4
              iexact F8
            isplitl [F10 H6]
            · iapply (Entails.of_eq (congrArg (outSlotV d L fx a6 cc2_scratch6.sem) (show 2 * k.val + 2 = 2 * (k.val + 1) by ring)))
              iapply (fl_outV d L fx (off_5 L k v0) (k2_off5_inb L k k2_h2) v0 a4 a6 cc2_scratch6.sem f0 g4 g6' hl6 hin4); iexists _
              isplitr
              rotate_left
              · isplitl [F10]; · iexact F10
                iexact H6
              ipureintro; intro y; rfl
            isplitl [H5 F9]
            · iapply (Entails.of_eq (congrArg (inSlotV d L fx a5 cc2_scratch5.sem) (show 2 * k.val + 3 = 2 * (k.val + 1) + 1 by ring)))
              iapply (Entails.of_eq (inSlotV_neg d L fx v3').symm)
              isplitl [H5]; · iexists _; iexact H5
              iexact F9
            · iapply (Entails.of_eq (outSlotV_neg d L fx (m := 2 * (k.val + 1) + 1) (by intro h; apply v1; have := h.2; rwa [show 2 * (k.val + 1) + 1 - 2 = 2 * k.val + 1 by omega] at this)).symm)
              isplitl [R7]; · iexists _; iexact R7
              iexact F11
    · have hk0 : k.val = 0 := by omega
      -- the first trip: nothing to drain
      have k2_h1 : ¬ k2_cond1 k = 1#1 := fun h => absurd ((cond1_iff k).mp h) (by omega)
      have k2_h2 : k2_cond2 L k = 1#1 := cond2_iff L k
      have k2_h3 : k2_cond3 L k = 1#1 := (cond3_iff L k).mpr (by omega)
      have k2_h4 : ¬ k2_cond4 k = 1#1 := fun h => absurd ((cond4_iff k).mp h) (by omega)
      have k2_h5 : k2_cond5 L k = 1#1 := (cond5_iff L k).mpr (by first | (unfold valid big at *; omega) | (unfold big at *; omega) | omega)
      have k2_h6 : k2_cond6 L k = 1#1 := (cond6_iff L k).mpr (by first | (unfold valid big at *; omega) | (unfold big at *; omega) | omega)
      have v0 : valid L (2 * k.val) := by unfold valid big at *; omega
      have v1 : valid L (2 * k.val + 1) := by unfold valid big at *; omega
      have v2 : valid L (2 * k.val + 2) := by unfold valid big at *; omega
      have v3' : valid L (2 * k.val + 3) := by unfold valid big at *; omega
      have hm0 : ¬ (2 ≤ 2 * k.val ∧ valid L (2 * k.val - 2)) := by omega
      have hm1 : ¬ (2 ≤ 2 * k.val + 1 ∧ valid L (2 * k.val + 1 - 2)) := by omega
      ihave S8 := (Entails.of_eq (inSlotV_pos d L fx v0)) $$ S8
      icases S8 with ⟨%g4, %hin4, F8⟩
      ihave S9 := (Entails.of_eq (inSlotV_pos d L fx v1)) $$ S9
      icases S9 with ⟨%g5, %hin5, F9⟩
      ihave S10 := (Entails.of_eq (outSlotV_neg d L fx hm0)) $$ S10
      icases S10 with ⟨⟨%g6, R6⟩, F10⟩
      ihave S11 := (Entails.of_eq (outSlotV_neg d L fx hm1)) $$ S11
      icases S11 with ⟨⟨%g7, R7⟩, F11⟩
      ihave HX := (Entails.of_eq (xSet_out (xP d L fx) k.val hk)) $$ HX
      icases HX with ⟨X2, X3, HX⟩
      ihave X2 := (Entails.of_eq (xP_pos d L fx v2)) $$ X2
      ihave X2 := (Entails.of_eq (in_congr d L (off_6 L k v2).symm (in_inb L _) (k2_off6_inb L k k2_h3) fx)) $$ X2
      ihave X3 := (Entails.of_eq (xP_pos d L fx v3')) $$ X3
      ihave X3 := (Entails.of_eq (in_congr d L (off_11 L k v3').symm (in_inb L _) (k2_off11_inb L k k2_h6) fx)) $$ X3
      ihave HOut := (Entails.of_eq (oSet_out (oMix d L fx k.val) k.val hk)) $$ HOut
      icases HOut with ⟨Y0, Y1, HOut⟩
      ihave Y0 := (Entails.of_eq ((oMix_ge d L fx (t := k.val) (n := 2 * k.val) (by omega)).trans (oP_pos (F := F) d L v0))) $$ Y0
      icases Y0 with ⟨%f0, Y0⟩
      ihave Y0 := (Entails.of_eq (out_congr d L (off_5 L k v0).symm (out_inb L _) (k2_off5_inb L k k2_h2) f0)) $$ Y0
      ihave Y1 := (Entails.of_eq ((oMix_ge d L fx (t := k.val) (n := 2 * k.val + 1) (by omega)).trans (oP_pos (F := F) d L v1))) $$ Y1
      icases Y1 with ⟨%f1, Y1⟩
      ihave Y1 := (Entails.of_eq (out_congr d L (off_10 L k v1).symm (out_inb L _) (k2_off10_inb L k k2_h5) f1)) $$ Y1
      sl_exec
      sl_for (laneV0 d L g4) $$ [F8_dst R6]
      case region =>
        intro (j : Fin k2_t2_loop.trips) _
        unfold laneV0
        iintro ⟨HA, %g, HB, %hl⟩
        sl_exec
        sl_step
        isplitl [HA]; · iexact HA
        iexists _; isplitl [HB]; · iexact HB
        ipureintro; exact lanes_step d L a4 a6 g4 g j _ _ hl
      · unfold laneV0
        isplitl [F8_dst]; · iexact F8_dst
        iexists _; isplitl [R6]; · iexact R6
        ipureintro; exact lanes_zero d L a4 a6 g4 _
      iintro %_ HI
      unfold laneV0
      icases HI with ⟨H4, %g6', H6, %hl6⟩
      have hl6 : Lanes d L a4 a6 g4 g6' 200 := Eq.mp (congrArg (Lanes d L a4 a6 g4 g6') trips2) hl6
      sl_exec
      sl_for (laneV1 d L g5) $$ [F9_dst R7]
      case region =>
        intro (j : Fin k2_t3_loop.trips) _
        unfold laneV1
        iintro ⟨HA, %g, HB, %hl⟩
        sl_exec
        sl_step
        isplitl [HA]; · iexact HA
        iexists _; isplitl [HB]; · iexact HB
        ipureintro; exact lanes_step' d L a5 a7 g5 g j _ _ hl
      · unfold laneV1
        isplitl [F9_dst]; · iexact F9_dst
        iexists _; isplitl [R7]; · iexact R7
        ipureintro; exact lanes_zero d L a5 a7 g5 _
      iintro %_ HI
      unfold laneV1
      icases HI with ⟨H5, %g7', H7, %hl7⟩
      have hl7 : Lanes d L a5 a7 g5 g7' 200 := Eq.mp (congrArg (Lanes d L a5 a7 g5 g7') trips3) hl7
      sl_exec
      sl_step
      isplitr; · iexact Hmw
      isplitl [HO]
      · iexists _; isplitr
        rotate_left
        · iexact HO
        ipureintro; intro p hp
        rcases Finset.mem_insert.mp hp with rfl | hp
        · exact .inr rfl
        rcases Finset.mem_insert.mp hp with rfl | hp
        · exact .inr rfl
        exact hW' p hp
      isplitl [HX F8_src F9_src]
      · iapply (Entails.of_eq (xSet_in (xP d L fx) k.val hk).symm)
        isplitl [F8_src]; · iapply (Entails.of_eq (xP_pos d L fx v0).symm); iexact F8_src
        isplitl [F9_src]; · iapply (Entails.of_eq (xP_pos d L fx v1).symm); iexact F9_src
        iexact HX
      isplitl [HOut]
      · iapply (Entails.of_eq (congrArg (fun s => bigSep s (oMix d L fx (k.val + 1))) (show oCore k.val = oSet (k.val + 1) by rw [hk0]; decide)))
        iapply (Entails.of_eq (oMix_core d L fx k.val)); iexact HOut
      isplitl [F8]
      · iapply (Entails.of_eq (congrArg (inSlotV d L fx a4 cc2_scratch4.sem) (show 2 * k.val + 2 = 2 * (k.val + 1) by ring)))
        iapply (fl_inV d L fx (off_6 L k v2) (k2_off6_inb L k k2_h3) v2 a4 cc2_scratch4.sem); iexists _, _
        isplitr
        rotate_left
        · iexact F8
        ipureintro; intro y; rfl
      isplitl [F10 H6]
      · iapply (Entails.of_eq (congrArg (outSlotV d L fx a6 cc2_scratch6.sem) (show 2 * k.val + 2 = 2 * (k.val + 1) by ring)))
        iapply (fl_outV d L fx (off_5 L k v0) (k2_off5_inb L k k2_h2) v0 a4 a6 cc2_scratch6.sem f0 g4 g6' hl6 hin4); iexists _
        isplitr
        rotate_left
        · isplitl [F10]; · iexact F10
          iexact H6
        ipureintro; intro y; rfl
      isplitl [F9]
      · iapply (Entails.of_eq (congrArg (inSlotV d L fx a5 cc2_scratch5.sem) (show 2 * k.val + 3 = 2 * (k.val + 1) + 1 by ring)))
        iapply (fl_inV d L fx (off_11 L k v3') (k2_off11_inb L k k2_h6) v3' a5 cc2_scratch5.sem); iexists _, _
        isplitr
        rotate_left
        · iexact F9
        ipureintro; intro y; rfl
      · iapply (Entails.of_eq (congrArg (outSlotV d L fx a7 cc2_scratch7.sem) (show 2 * k.val + 1 + 2 = 2 * (k.val + 1) + 1 by ring)))
        iapply (fl_outV d L fx (off_10 L k v1) (k2_off10_inb L k k2_h5) v1 a5 a7 cc2_scratch7.sem f1 g5 g7' hl7 hin5); iexists _
        isplitr
        rotate_left
        · isplitl [F11]; · iexact F11
          iexact H7
        ipureintro; intro y; rfl
  · unfold invV
    isplitr; · iexact Hmw
    isplitl [HO]
    · iexists W; isplitr
      · ipureintro; exact fun p hp => .inl hp
      · iexact HO
    isplitl [HX]; · iexact HX
    isplitl [HOut]; · iapply (Entails.of_eq (oMix_zero d L fx).symm); iexact HOut
    isplitl [S8]; · iexact S8
    isplitl [H6 Hs10]
    · rw [outSlotV_neg d L fx (by omega)]; isplitl [H6]; · iexists _; iexact H6
      iexact Hs10
    isplitl [S9]; · iexact S9
    rw [outSlotV_neg d L fx (by omega)]; isplitl [H7]; · iexists _; iexact H7
    iexact Hs11
  iintro %acc' HI
  ihave HI := (Entails.of_eq (congrArg (fun t => invV d L O W fx t acc') trips1)) $$ HI
  unfold invV
  icases HI with ⟨-, ⟨%W', %hW', HO⟩, HX, HOut, S8, S10, S9, S11⟩
  have nv16 : ¬ valid L (2 * 8) := by unfold valid; omega
  have nv17 : ¬ valid L (2 * 8 + 1) := by unfold valid; omega
  have hm14 : 2 ≤ 2 * 8 ∧ valid L (2 * 8 - 2) := ⟨by omega, Or.inl (by omega)⟩
  ihave S8 := (Entails.of_eq (inSlotV_neg d L fx nv16)) $$ S8
  icases S8 with ⟨⟨%g4', H4⟩, Hs8⟩
  ihave S9 := (Entails.of_eq (inSlotV_neg d L fx nv17)) $$ S9
  icases S9 with ⟨⟨%g5', H5⟩, Hs9⟩
  ihave S10 := (Entails.of_eq (outSlotV_pos d L fx hm14)) $$ S10
  icases S10 with ⟨%g6', F10, R6⟩
  by_cases hb : big L
  · have k2_h8 : k2_cond8 L = 1#1 := (cond8_iff L).mpr hb
    have hm15 : 2 ≤ 2 * 8 + 1 ∧ valid L (2 * 8 + 1 - 2) := ⟨by omega, Or.inr ⟨by omega, hb⟩⟩
    ihave S11 := (Entails.of_eq (outSlotV_pos d L fx hm15)) $$ S11
    icases S11 with ⟨%g7', F11, R7⟩
    sl_exec
    sl_step
    isplitl [HX]; · iapply (xRange_end d L fx); iexact HX
    isplitl [HOut F10_dst F11_dst]
    · iapply (Entails.of_eq (oRange_end (oQ d L fx)).symm)
      isplitl [F10_dst]; · iapply (Entails.of_eq (oQ_pos d L fx hm14.2).symm); iexact F10_dst
      isplitl [F11_dst]; · iapply (Entails.of_eq (oQ_pos d L fx hm15.2).symm); iexact F11_dst
      iapply (Entails.of_eq (oMix_end d L fx)); iexact HOut
    isplitl [H4]; · iexists _; iexact H4
    isplitl [H5]; · iexists _; iexact H5
    isplitl [R6]; · iexists _; iexact R6
    isplitl [R7]; · iexists _; iexact R7
    isplitl [Hs8]; · iexact Hs8
    isplitl [Hs9]; · iexact Hs9
    isplitl [F10]; · iexact F10
    isplitl [F11]; · iexact F11
    isplitl [HO]
    · iexists _; isplitr
      rotate_left
      · iexact HO
      ipureintro; intro p hp
      rcases Finset.mem_insert.mp hp with rfl | hp
      · exact .inr rfl
      rcases Finset.mem_insert.mp hp with rfl | hp
      · exact .inr rfl
      exact hW' p hp
    iexact HR
  · have k2_h8 : ¬ k2_cond8 L = 1#1 := fun h => hb ((cond8_iff L).mp h)
    have hm15 : ¬ (2 ≤ 2 * 8 + 1 ∧ valid L (2 * 8 + 1 - 2)) := by intro h; have := h.2; unfold valid at this; omega
    ihave S11 := (Entails.of_eq (outSlotV_neg d L fx hm15)) $$ S11
    icases S11 with ⟨⟨%g7', R7⟩, F11⟩
    sl_exec
    sl_step
    isplitl [HX]; · iapply (xRange_end d L fx); iexact HX
    isplitl [HOut F10_dst]
    · iapply (Entails.of_eq (oRange_end (oQ d L fx)).symm)
      isplitl [F10_dst]; · iapply (Entails.of_eq (oQ_pos d L fx hm14.2).symm); iexact F10_dst
      isplitr; · iapply (Entails.of_eq (oQ_neg d L fx (n := 15) (by unfold valid; omega)).symm); iempintro
      iapply (Entails.of_eq (oMix_end d L fx)); iexact HOut
    isplitl [H4]; · iexists _; iexact H4
    isplitl [H5]; · iexists _; iexact H5
    isplitl [R6]; · iexists _; iexact R6
    isplitl [R7]; · iexists _; iexact R7
    isplitl [Hs8]; · iexact Hs8
    isplitl [Hs9]; · iexact Hs9
    isplitl [F10]; · iexact F10
    isplitl [F11]; · iexact F11
    isplitl [HO]
    · iexists _; isplitr
      rotate_left
      · iexact HO
      ipureintro; intro p hp
      rcases Finset.mem_insert.mp hp with rfl | hp
      · exact .inr rfl
      exact hW' p hp
    iexact HR

/-! The subcore's scoped storage: the four staging buffers and the four semaphores of this call, and the rest. -/

abbrev c8 : GSem nD τ sig := (thr d L, SemLoc.dma cc2_scratch4.sem)
abbrev c9 : GSem nD τ sig := (thr d L, SemLoc.dma cc2_scratch5.sem)
abbrev c10 : GSem nD τ sig := (thr d L, SemLoc.dma cc2_scratch6.sem)
abbrev c11 : GSem nD τ sig := (thr d L, SemLoc.dma cc2_scratch7.sem)

omit [FloatOps F] in
theorem ownSems0_V :
    (ownSems0 (thr d L) : sProp 𝕄)
      = iprop(semVal (c8 d L) 0 ∗ semVal (c9 d L) 0 ∗ semVal (c10 d L) 0 ∗ semVal (c11 d L) 0
          ∗ bigSep (((((ownCells (thr d L)).erase (c8 d L)).erase (c9 d L)).erase (c10 d L)).erase (c11 d L)) fun g => semVal g 0) := by
  unfold SparseCore.Cfg.ownSems0
  rw [SparseCore.bigSep_erase' ((mem_ownCells (g := c8 d L)).mpr ⟨rfl, by
      show (SemLoc.dma cc2_scratch4.sem : SemLoc sig).isScoped .scVector = true; decide⟩),
    SparseCore.bigSep_erase' (Finset.mem_erase.mpr ⟨fun e => absurd (Prod.mk.inj e).2 (by decide), (mem_ownCells (g := c9 d L)).mpr ⟨rfl, by
      show (SemLoc.dma cc2_scratch5.sem : SemLoc sig).isScoped .scVector = true; decide⟩⟩),
    SparseCore.bigSep_erase' (Finset.mem_erase.mpr ⟨fun e => absurd (Prod.mk.inj e).2 (by decide), Finset.mem_erase.mpr ⟨fun e => absurd (Prod.mk.inj e).2 (by decide),
      (mem_ownCells (g := c10 d L)).mpr ⟨rfl, by show (SemLoc.dma cc2_scratch6.sem : SemLoc sig).isScoped .scVector = true; decide⟩⟩⟩),
    SparseCore.bigSep_erase' (Finset.mem_erase.mpr ⟨fun e => absurd (Prod.mk.inj e).2 (by decide), Finset.mem_erase.mpr ⟨fun e => absurd (Prod.mk.inj e).2 (by decide),
      Finset.mem_erase.mpr ⟨fun e => absurd (Prod.mk.inj e).2 (by decide),
      (mem_ownCells (g := c11 d L)).mpr ⟨rfl, by show (SemLoc.dma cc2_scratch7.sem : SemLoc sig).isScoped .scVector = true; decide⟩⟩⟩⟩)]

abbrev pV (L : grid2.Coords) : Proc τ := Proc.scVector (cV L) (jV L)

omit [FloatOps F] in
theorem ownBufs_V :
    (ownBufs (thr d L) : sProp 𝕄)
      = iprop((∃ f, (thr d L).loc cc2_scratch0 ↦{fullShare} f) ∗ (∃ f, (thr d L).loc cc2_scratch1 ↦{fullShare} f)
          ∗ (∃ f, (thr d L).loc cc2_scratch2 ↦{fullShare} f) ∗ (∃ f, (thr d L).loc cc2_scratch3 ↦{fullShare} f)
          ∗ bigSep (((((ownRefs (τ := τ) (pV L)).erase ((pV L).devRef cc2_scratch0)).erase ((pV L).devRef cc2_scratch1)).erase
              ((pV L).devRef cc2_scratch2)).erase ((pV L).devRef cc2_scratch3))
              fun b => iprop(∃ f, ((d, b) : Loc nD τ sig) ↦{fullShare} f)) := by
  unfold SparseCore.Cfg.ownBufs
  refine (SparseCore.bigSep_erase' (SparseCore.Cfg.mem_ownRefs_of_owner (p := pV L) (b := (pV L).devRef cc2_scratch0) rfl)).trans ?_
  rw [SparseCore.bigSep_erase' (Finset.mem_erase.mpr ⟨fun e => absurd (Proc.devRef_injective _ e) (show (cc2_scratch1 : Ref sig .scVector) ≠ cc2_scratch0 by decide),
      SparseCore.Cfg.mem_ownRefs_of_owner (p := pV L) (b := (pV L).devRef cc2_scratch1) rfl⟩),
    SparseCore.bigSep_erase' (Finset.mem_erase.mpr ⟨fun e => absurd (Proc.devRef_injective _ e) (show (cc2_scratch2 : Ref sig .scVector) ≠ cc2_scratch1 by decide),
      Finset.mem_erase.mpr ⟨fun e => absurd (Proc.devRef_injective _ e) (show (cc2_scratch2 : Ref sig .scVector) ≠ cc2_scratch0 by decide),
      SparseCore.Cfg.mem_ownRefs_of_owner (p := pV L) (b := (pV L).devRef cc2_scratch2) rfl⟩⟩),
    SparseCore.bigSep_erase' (Finset.mem_erase.mpr ⟨fun e => absurd (Proc.devRef_injective _ e) (show (cc2_scratch3 : Ref sig .scVector) ≠ cc2_scratch2 by decide),
      Finset.mem_erase.mpr ⟨fun e => absurd (Proc.devRef_injective _ e) (show (cc2_scratch3 : Ref sig .scVector) ≠ cc2_scratch1 by decide),
      Finset.mem_erase.mpr ⟨fun e => absurd (Proc.devRef_injective _ e) (show (cc2_scratch3 : Ref sig .scVector) ≠ cc2_scratch0 by decide),
      SparseCore.Cfg.mem_ownRefs_of_owner (p := pV L) (b := (pV L).devRef cc2_scratch3) rfl⟩⟩⟩)]

/-- The rest of the subcore's scoped storage, which the task does not touch. -/
def restR : sProp 𝕄 :=
  iprop((bigSep (((((ownRefs (τ := τ) (pV L)).erase ((pV L).devRef cc2_scratch0)).erase ((pV L).devRef cc2_scratch1)).erase
              ((pV L).devRef cc2_scratch2)).erase ((pV L).devRef cc2_scratch3))
              fun b => iprop(∃ f, ((d, b) : Loc nD τ sig) ↦{fullShare} f))
      ∗ bigSep (((((ownCells (thr d L)).erase (c8 d L)).erase (c9 d L)).erase (c10 d L)).erase (c11 d L)) fun g => semVal g 0)

theorem body_pre (hO : ∀ g, O g none = 0) :
    iprop(levAts (K (F := F)).L (K (F := F)).lev ∗ emp ∗ goRes d L fx ∗ ownBufs (thr d L) ∗ ownSems0 (thr d L) ∗ owes (thr d L) O W)
      ⊢ runPre d L O W fx (restR (F := F) d L) := by
  rw [ownSems0_V, ownBufs_V]
  unfold goRes runPre restR
  iintro ⟨#Hlv, -, ⟨HX, HOut⟩, ⟨H4, H5, H6, H7, Hbufs⟩, ⟨Hs8, Hs9, Hs10, Hs11, Hsems⟩, HO⟩
  ihave Hmw := ((K (F := F)).mayWaits_none (thr := thr d L) hO) $$ Hlv
  isplitr; · iexact Hmw
  isplitl [HO]; · iexact HO
  isplitl [HX]; · iexact HX
  isplitl [HOut]; · iexact HOut
  isplitl [H4]; · iexact H4
  isplitl [H5]; · iexact H5
  isplitl [H6]; · iexact H6
  isplitl [H7]; · iexact H7
  isplitl [Hs8]; · iexact Hs8
  isplitl [Hs9]; · iexact Hs9
  isplitl [Hs10]; · iexact Hs10
  isplitl [Hs11]; · iexact Hs11
  isplitl [Hbufs]; · iexact Hbufs
  iexact Hsems

theorem body_post :
    runPost d L O W fx (restR (F := F) d L)
      ⊢ iprop(tdRes d L fx ∗ ownBufs (thr d L) ∗ ownSems0 (thr d L) ∗ ∃ W', ⌜∀ p ∈ W', p ∈ W ∨ p.2 = none⌝ ∗ owes (thr d L) O W') := by
  rw [ownSems0_V, ownBufs_V]
  unfold tdRes runPost restR
  iintro ⟨HX, HOut, H4, H5, H6, H7, Hs8, Hs9, Hs10, Hs11, HW, Hbufs, Hsems⟩
  isplitl [HX HOut]
  · isplitl [HX]; · iexact HX
    iexact HOut
  isplitl [H4 H5 H6 H7 Hbufs]
  · isplitl [H4]; · iexact H4
    isplitl [H5]; · iexact H5
    isplitl [H6]; · iexact H6
    isplitl [H7]; · iexact H7
    iexact Hbufs
  isplitl [Hs8 Hs9 Hs10 Hs11 Hsems]
  · isplitl [Hs8]; · iexact Hs8
    isplitl [Hs9]; · iexact Hs9
    isplitl [Hs10]; · iexact Hs10
    isplitl [Hs11]; · iexact Hs11
    iexact Hsems
  iexact HW

/-- The task in the launch theorem's shape: from what the call hands the tile and the subcore's scoped storage to
    what the tile hands back and the storage again. -/
theorem tile_body (hF : (K (F := F)).Facts) (hO : ∀ g, O g none = 0) :
    iprop(levAts (K (F := F)).L (K (F := F)).lev ∗ emp ∗ goRes d L fx ∗ scopedBufs (thr d L) ∗ scopedSems0 (thr d L) ∗ owes (thr d L) O W)
      ⊢ wp frame (wpE (defs₀ (F := F)) 𝒱₀ (thr d L) none) Set.univ
          (cc2_sc_group L xtW (Memref.isWhole_whole _) oW (Memref.isWhole_whole _) a4 (Memref.isWhole_whole _) a5 (Memref.isWhole_whole _)
            a6 (Memref.isWhole_whole _) a7 (Memref.isWhole_whole _) cc2_scratch4 cc2_scratch5 cc2_scratch6 cc2_scratch7)
          fun _ => iprop(tdRes d L fx ∗ scopedBufs (thr d L) ∗ scopedSems0 (thr d L)
            ∗ ∃ W', ⌜∀ p ∈ W', p ∈ W ∨ p.2 = none⌝ ∗ owes (thr d L) O W') := by
  rw [(K (F := F)).scopedBufs_V hF d (cV L) (jV L), SparseCore.Cfg.scopedSems0_V (Val := Elt F) d (cV L) (jV L)]
  exact (body_pre d L O W fx hO).trans ((tile_run d L O W fx (restR (F := F) d L)).trans (wp_mono frame _ _ fun _ => body_post d L O W fx))

end Tile

end Cert.Proof.TileK2

end
-- ==== Proof.TileBVal2.lean ====
/-
  What the staging buffers of one vector subcore hold while it copies a piece of 3200 consecutive elements of row 2 of
  the transposed argument into the flat result, read index by index. No program and no ownership here: only the contents.

  A transfer lands the piece in row 0 of an 8 × 3200 staging array (`InRow`: position (0, t) of that row holds element
  (0, pos + t) of the transposed argument, `pos` the piece's first column). A loop of 200 trips copies that row, 16 lanes
  per trip, into the first 3200 elements of a flat staging array of 25600: trip `j` reads the 1 × 16 window at columns
  [16 j, 16 j + 16) of row 0 and writes it, flattened, at elements [16 j, 16 j + 16). After `j` trips the first 16 j
  elements of the flat array are the first 16 j elements of the row (`Lanes`); a trip extends the prefix by 16
  (`lanes_step`: an element below 16 j is outside the window written and keeps its value, an element of the window reads
  the lane written there, which is the row's element at the same column). A second transfer writes the first 3200
  elements of the flat array to the piece of the result at the same `pos`; so every element of that piece of the result
  holds the element of row 2 of the transposed argument at its own position (`out_written`): the composite of the three
  index maps t ↦ (0, pos + t) ↦ (0, t) ↦ t ↦ pos + t is the identity on positions of the row.
-/
import proofs.«206869_g37898791420194_cont_8to1_b_558_20_alg».proof.Proof.TileB2Defs
import proofs.«206869_g37898791420194_cont_8to1_b_558_20_alg».proof.Proof.Spec
import Idealize.ShloMosaic.Lib.WritesUnit
import Idealize.ShloMosaic.Lib.ValueLayout

noncomputable section

namespace Cert.Proof.TileBVal2

open Cert.Proof.TileB2 Cert.Kernel Cert.Kernel.Gen
open Idealize.ShloMosaic Idealize.ShloMosaic.ValueIdx

variable {F : FTy → Type} [FloatOps F]
variable (d : Dev nD) (L : grid2.Coords)
variable (fx : Buf (Elt F) ((Memref.whole main_v0_scv : Memref sig .scVector .hbm S22x1600000 .f32).view.loc (thr d L)))

abbrev rowRect : Rect S8x3200 := Rect.unit (s := S8x3200) ![0, 0] S1x3200.size inb_S8x3200_S1x3200_0_0

/-- row 0 of the staging array is piece n of the argument row -/
def InRow (a : Memref sig .scVector .vmem S8x3200 .f32) (ga : Buf (Elt F) (a.view.loc (thr d L))) (n : ℕ) : Prop :=
  ∀ y : S1x3200.Idx, a.view.read (Elt F) ga (rowRect.emb y) = (inM L n).view.read (Elt F) fx y

theorem inRow_fetch (a : Memref sig .scVector .vmem S8x3200 .f32) (gold : Buf (Elt F) (a.view.loc (thr d L)))
    (w : S1x3200.Idx → Elt F .f32) (n : ℕ) (hw : ∀ y, w y = (inM L n).view.read (Elt F) fx y) :
    InRow d L fx a (a.view.writes (Elt F) gold [⟨rowRect, w⟩]) n :=
  fun y => (View.read_writes_cons_emb a.view gold rowRect w [] y).trans (hw y)

def Lanes (a : Memref sig .scVector .vmem S8x3200 .f32) (b : Memref sig .scVector .vmem S25600 .f32)
    (ga : Buf (Elt F) (a.view.loc (thr d L))) (gb : Buf (Elt F) (b.view.loc (thr d L))) (j : ℕ) : Prop :=
  ∀ (r : ℕ) (hr : r < 3200), r < 16 * j →
    b.view.read (Elt F) gb (ix1 (⟨r, by omega⟩ : Fin 25600)) = a.view.read (Elt F) ga (ix2 (0 : Fin 8) (⟨r, hr⟩ : Fin 3200))

theorem lanes_zero (a : Memref sig .scVector .vmem S8x3200 .f32) (b : Memref sig .scVector .vmem S25600 .f32)
    (ga : Buf (Elt F) (a.view.loc (thr d L))) (gb : Buf (Elt F) (b.view.loc (thr d L))) : Lanes d L a b ga gb 0 := by
  intro r hr h; omega

/-- The 1 × 16 window at column `c` of the staging array, read at lane `t`, is element `(0, c + t)`. -/
theorem idx_window {off : Fin 2 → ℕ} {c : ℕ} (h : off = ![0, c]) (p : ∀ a', off a' + S1x16.size a' ≤ S8x3200.size a')
    (t : Fin 16) (hr : c + t.val < 3200) :
    (Rect.unit (s := S8x3200) off S1x16.size p).toLoadRect.idx (ix2 (0 : Fin 1) t) = ix2 (0 : Fin 8) (⟨c + t.val, hr⟩ : Fin 3200) := by
  subst h
  funext a'; apply Fin.ext
  rw [LoadRect.idx_apply]
  match a' with
  | ⟨0, _⟩ => show 0 + 1 * 0 = 0; omega
  | ⟨1, _⟩ => show c + 1 * t.val = c + t.val; omega

/-- One trip of a lane-copy loop, the offsets given by their closed forms. -/
theorem lanes_step_core (a : Memref sig .scVector .vmem S8x3200 .f32) (b : Memref sig .scVector .vmem S25600 .f32)
    (ga : Buf (Elt F) (a.view.loc (thr d L))) (gb : Buf (Elt F) (b.view.loc (thr d L)))
    (t : ℕ) {off3 : Fin 2 → ℕ} {off4 : Fin 1 → ℕ} (h3 : off3 = ![0, 16 * t]) (h4 : off4 = ![16 * t])
    (p3 : ∀ a', off3 a' + S1x16.size a' ≤ S8x3200.size a') (p4 : ∀ a', off4 a' + S16.size a' ≤ S25600.size a')
    (h : Lanes d L a b ga gb t) :
    Lanes d L a b ga (b.view.writes (Elt F) gb [⟨Rect.unit (s := S25600) off4 S16.size p4,
      shapeCast S16 (a.view.readAt (Elt F) (Rect.unit (s := S8x3200) off3 S1x16.size p3).toLoadRect ga) shapeCasts_S1x16_S16⟩]) (t + 1) := by
  intro r hr hlt
  by_cases hlo : r < 16 * t
  · refine (View.read_writes_cons_unit_of_not_mem b.view gb p4 _ [] _ h4 (0 : Fin 1) (Or.inl ?_)).trans (h r hr hlo)
    show r < 16 * t
    exact hlo
  · have hx : r - 16 * t < 16 := by omega
    refine (View.read_writes_cons_unit_of_mem b.view gb p4 _ [] _ (ix1 (⟨r - 16 * t, hx⟩ : Fin 16)) h4 ?_).trans ?_
    · intro a'
      match a' with
      | ⟨0, _⟩ => show r = 16 * t + (r - 16 * t); omega
    · rw [shapeCast_1a_a_apply, View.readAt_apply, idx_window h3 p3 ⟨r - 16 * t, hx⟩ (by show 16 * t + (r - 16 * t) < 3200; omega)]
      congr 2
      apply Fin.ext
      show 16 * t + (r - 16 * t) = r
      omega

theorem lanes_step (a : Memref sig .scVector .vmem S8x3200 .f32) (b : Memref sig .scVector .vmem S25600 .f32)
    (ga : Buf (Elt F) (a.view.loc (thr d L))) (gb : Buf (Elt F) (b.view.loc (thr d L)))
    (j : Fin k2_t2_loop.trips) (p3 : ∀ a', (k2_off3 j) a' + S1x16.size a' ≤ S8x3200.size a')
    (p4 : ∀ a', (k2_off4 j) a' + S16.size a' ≤ S25600.size a') (h : Lanes d L a b ga gb j.val) :
    Lanes d L a b ga (b.view.writes (Elt F) gb [⟨Rect.unit (s := S25600) (k2_off4 j) S16.size p4,
      k2_pay1 (a.view.readAt (Elt F) (Rect.unit (s := S8x3200) (k2_off3 j) S1x16.size p3).toLoadRect ga)⟩]) (j.val + 1) :=
  lanes_step_core d L a b ga gb j.val (k2_off3_eq j) (k2_off4_eq j) p3 p4 h

theorem lanes_step' (a : Memref sig .scVector .vmem S8x3200 .f32) (b : Memref sig .scVector .vmem S25600 .f32)
    (ga : Buf (Elt F) (a.view.loc (thr d L))) (gb : Buf (Elt F) (b.view.loc (thr d L)))
    (j : Fin k2_t3_loop.trips) (p3 : ∀ a', (k2_off8 j) a' + S1x16.size a' ≤ S8x3200.size a')
    (p4 : ∀ a', (k2_off9 j) a' + S16.size a' ≤ S25600.size a') (h : Lanes d L a b ga gb j.val) :
    Lanes d L a b ga (b.view.writes (Elt F) gb [⟨Rect.unit (s := S25600) (k2_off9 j) S16.size p4,
      k2_pay2 (a.view.readAt (Elt F) (Rect.unit (s := S8x3200) (k2_off8 j) S1x16.size p3).toLoadRect ga)⟩]) (j.val + 1) :=
  lanes_step_core d L a b ga gb j.val (k2_off8_eq j) (k2_off9_eq j) p3 p4 h

/-- Position `y` of the write-out window of the flat staging array is its element `y 0`. -/
theorem stg_emb (y : S3200.Idx) (hy : (y 0).val < 25600) :
    (Rect.unit (s := S25600) ![0] S3200.size inb_S25600_S3200_0).emb y = ix1 (⟨(y 0).val, hy⟩ : Fin 25600) := by
  funext a'; apply Fin.ext
  match a' with
  | ⟨0, _⟩ => show 0 + 1 * (y 0).val = (y 0).val; omega

/-- Position `(0, t)` of row 0 of the staging array is its element `(0, t)`. -/
theorem row_emb (t : Fin 3200) : rowRect.emb (ix2 (0 : Fin 1) t) = ix2 (0 : Fin 8) t := by
  funext a'; apply Fin.ext
  match a' with
  | ⟨0, _⟩ => show 0 + 1 * 0 = 0; omega
  | ⟨1, _⟩ => show 0 + 1 * t.val = t.val; omega

/-- Position `(0, t)` of piece `n` of the argument row is element `(0, pos + t)` of the transposed argument;
    position `y` of piece `n` of the result is element `pos + y 0` of the result. -/
theorem in_emb (n : ℕ) (t : Fin 3200) (h : pos L n + t.val < 1600000) :
    (inM L n).view.emb (ix2 (0 : Fin 1) t) = ix2 (2 : Fin 22) (⟨pos L n + t.val, h⟩ : Fin 1600000) := by
  funext a'; apply Fin.ext
  match a' with
  | ⟨0, _⟩ => show 2 + 1 * 0 = 2; omega
  | ⟨1, _⟩ => show pos L n + 1 * t.val = pos L n + t.val; omega

theorem out_emb (n : ℕ) (y : S3200.Idx) (h : pos L n + (y 0).val < 1600000) :
    (outM L n).view.emb y = ix1 (⟨pos L n + (y 0).val, h⟩ : Fin 1600000) := by
  funext a'; apply Fin.ext
  match a' with
  | ⟨0, _⟩ => show pos L n + 1 * (y 0).val = pos L n + (y 0).val; omega

/-- Both lane-copy loops run 200 trips: 200 · 16 = 3200, the whole row. -/
theorem trips2 : k2_t2_loop.trips = 200 := by decide
theorem trips3 : k2_t3_loop.trips = 200 := by decide

/-- After all its trips a lane-copy loop has copied the whole row. -/
theorem lanes_all (a : Memref sig .scVector .vmem S8x3200 .f32) (b : Memref sig .scVector .vmem S25600 .f32)
    (ga : Buf (Elt F) (a.view.loc (thr d L))) (gb : Buf (Elt F) (b.view.loc (thr d L)))
    (h : Lanes d L a b ga gb k2_t2_loop.trips) : Lanes d L a b ga gb 200 := trips2 ▸ h
theorem lanes_all' (a : Memref sig .scVector .vmem S8x3200 .f32) (b : Memref sig .scVector .vmem S25600 .f32)
    (ga : Buf (Elt F) (a.view.loc (thr d L))) (gb : Buf (Elt F) (b.view.loc (thr d L)))
    (h : Lanes d L a b ga gb k2_t3_loop.trips) : Lanes d L a b ga gb 200 := trips3 ▸ h

/-- The write-out of a piece: the first 3200 elements of the flat staging array, which the 200 lane copies filled from
    row 0 of the staging array, which the fetch filled from piece `n` of row 2 of the transposed argument, land at
    piece `n` of the result, at the same positions of the row. -/
theorem out_written (a : Memref sig .scVector .vmem S8x3200 .f32) (b : Memref sig .scVector .vmem S25600 .f32) (n : ℕ)
    (ga : Buf (Elt F) (a.view.loc (thr d L))) (gb : Buf (Elt F) (b.view.loc (thr d L)))
    (f0 : Buf (Elt F) ((outM L n).view.loc (thr d L))) (w : S3200.Idx → Elt F .f32)
    (hw : ∀ y, w y = (stg b).view.read (Elt F) gb y) (hl : Lanes d L a b ga gb 200) (hr : InRow d L fx a ga n) (hv : valid L n) :
    ∀ i ∈ (outM L n).view.set, ((outM L n).view.writes (Elt F) f0 [⟨Rect.whole _, w⟩]) i = Cert.Spec.row 2 fx i := by
  intro i hi
  obtain ⟨y, -, rfl⟩ := Finset.mem_map.mp hi
  have hy : (y 0).val < 3200 := (y 0).isLt
  have hp : pos L n + (y 0).val < 1600000 := by unfold pos; omega
  have e1 : (outM L n).view.writes (Elt F) f0 [⟨Rect.whole _, w⟩] ((outM L n).view.emb y) = w y := by
    have h := View.read_writes_cons_emb (outM L n).view f0 (Rect.whole _) w [] y
    rw [Rect.emb_whole_apply] at h
    exact (cast_eq _ _).symm.trans ((View.read_apply _ _).symm.trans h)
  have e2 : (stg b).view.read (Elt F) gb y = b.view.read (Elt F) gb (ix1 (⟨(y 0).val, by omega⟩ : Fin 25600)) :=
    congrArg (b.view.read (Elt F) gb) (stg_emb y (by omega))
  have e3 : a.view.read (Elt F) ga (ix2 (0 : Fin 8) (⟨(y 0).val, hy⟩ : Fin 3200))
      = (inM L n).view.read (Elt F) fx (ix2 (0 : Fin 1) (⟨(y 0).val, hy⟩ : Fin 3200)) :=
    (congrArg (a.view.read (Elt F) ga) (row_emb ⟨(y 0).val, hy⟩).symm).trans (hr _)
  have e4 : (inM L n).view.read (Elt F) fx (ix2 (0 : Fin 1) (⟨(y 0).val, hy⟩ : Fin 3200))
      = fx (ix2 (2 : Fin 22) (⟨pos L n + (y 0).val, hp⟩ : Fin 1600000)) :=
    ((View.read_apply _ _).trans (cast_eq _ _)).trans (congrArg fx (in_emb L n ⟨(y 0).val, hy⟩ hp))
  have e5 : Cert.Spec.row 2 fx ((outM L n).view.emb y) = fx (ix2 (2 : Fin 22) (⟨pos L n + (y 0).val, hp⟩ : Fin 1600000)) :=
    (congrArg (Cert.Spec.row 2 fx) (out_emb L n y hp)).trans (Cert.Spec.row_apply 2 fx _)
  exact e1.trans ((hw y).trans (e2.trans ((hl _ hy (by omega)).trans (e3.trans (e4.trans e5.symm)))))

end Cert.Proof.TileBVal2

end
-- ==== Proof.TileB2.lean ====
/-
  One vector subcore's task of copy kernel 2 (counting from 0), run symbolically: the two fetch slots and two write-out slots
  between trips of the main loop (what each transfer in flight will hand back, and what the staging buffers hold), the
  invariant of the main loop and of the two lane-copy loops, and the task's run — from the tile's pieces of row 2 of
  the transposed argument and of the result to the same pieces with the result holding the row's elements.
-/
import proofs.«206869_g37898791420194_cont_8to1_b_558_20_alg».proof.Proof.TileB2Defs
import proofs.«206869_g37898791420194_cont_8to1_b_558_20_alg».proof.Proof.TileBVal2
noncomputable section

namespace Cert.Proof.TileB2

open Cert.Kernel Cert.Kernel.Gen Cert.Proof.TileBVal2
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 22) (Elt F) ℕ UU ℕ
local notation "xtW" => (Memref.whole Cert.Kernel.main_v0_scv : Memref Cert.Kernel.sig Kind.scVector Space.hbm Cert.Kernel.S22x1600000 EltTy.f32)
local notation "oW" => (Memref.whole Cert.Kernel.main_v3_scv : Memref Cert.Kernel.sig Kind.scVector Space.hbm Cert.Kernel.S1600000 EltTy.f32)
local notation "a4" => (Memref.whole Cert.Kernel.cc2_scratch0 : Memref Cert.Kernel.sig Kind.scVector Space.vmem Cert.Kernel.S8x3200 EltTy.f32)
local notation "a5" => (Memref.whole Cert.Kernel.cc2_scratch1 : Memref Cert.Kernel.sig Kind.scVector Space.vmem Cert.Kernel.S8x3200 EltTy.f32)
local notation "a6" => (Memref.whole Cert.Kernel.cc2_scratch2 : Memref Cert.Kernel.sig Kind.scVector Space.vmem Cert.Kernel.S25600 EltTy.f32)
local notation "a7" => (Memref.whole Cert.Kernel.cc2_scratch3 : Memref Cert.Kernel.sig Kind.scVector Space.vmem Cert.Kernel.S25600 EltTy.f32)

variable [FloatOps F]

section Tile

variable (d : Dev nD) (L : grid2.Coords)
variable (O : CellTallies nD τ sig (HIx 22)) (W : Waits sig (HIx 22))
variable (fx : Buf (Elt F) ((xtW).view.loc (thr d L)))

/-- Piece `n` of the result at its final contents. -/
abbrev oqPiece (n : ℕ) : sProp 𝕄 := (outM L n).view.loc (thr d L) ↦[(outM L n).view.set]{fullShare} (Cert.Spec.row 2 fx)
theorem oQ_pos {n : ℕ} (v : valid L n) : oQ d L fx n = oqPiece d L fx n := if_pos v
theorem oQ_neg {n : ℕ} (v : ¬ valid L n) : oQ d L fx n = iprop(emp) := if_neg v

/-- A fetch slot, remembering that the staging row it will hand back holds the piece. -/
def inSlotV (a : Memref sig .scVector .vmem S8x3200 .f32) (sm : DmaSem sig) (n : ℕ) : sProp 𝕄 :=
  if valid L n then
    iprop(∃ g, ⌜InRow d L fx a g n⌝ ∗ Transfers.Flight countersEmb (thr d L) (SemLoc.dma sm) (default : HIx 22) NN
      iprop((a.view.loc (thr d L) ↦{fullShare} g) ∗ xtPiece d L fx n))
  else iprop((∃ g, a.view.loc (thr d L) ↦{fullShare} g) ∗ semVal (thr d L, SemLoc.dma sm) 0)

/-- A write-out slot: the piece in flight will come back holding the row's elements. -/
def outSlotV (a : Memref sig .scVector .vmem S25600 .f32) (sm : DmaSem sig) (m : ℕ) : sProp 𝕄 :=
  if 2 ≤ m ∧ valid L (m - 2) then
    iprop(∃ g, Transfers.Flight countersEmb (thr d L) (SemLoc.dma sm) (default : HIx 22) NN
        iprop(oqPiece d L fx (m - 2) ∗ ((stg a).view.loc (thr d L) ↦[(stg a).view.set]{fullShare} g))
      ∗ (a.view.loc (thr d L) ↦[Finset.univ \ (stg a).view.set]{fullShare} g))
  else iprop((∃ g, a.view.loc (thr d L) ↦{fullShare} g) ∗ semVal (thr d L, SemLoc.dma sm) 0)

theorem inSlotV_pos {a : Memref sig .scVector .vmem S8x3200 .f32} {sm : DmaSem sig} {n : ℕ} (v : valid L n) :
    inSlotV d L fx a sm n = iprop(∃ g, ⌜InRow d L fx a g n⌝ ∗ Transfers.Flight countersEmb (thr d L) (SemLoc.dma sm) (default : HIx 22) NN
      iprop((a.view.loc (thr d L) ↦{fullShare} g) ∗ xtPiece d L fx n)) := by unfold inSlotV; rw [if_pos v]
theorem inSlotV_neg {a : Memref sig .scVector .vmem S8x3200 .f32} {sm : DmaSem sig} {n : ℕ} (v : ¬ valid L n) :
    inSlotV d L fx a sm n = iprop((∃ g, a.view.loc (thr d L) ↦{fullShare} g) ∗ semVal (thr d L, SemLoc.dma sm) 0) := by
  unfold inSlotV; rw [if_neg v]
theorem outSlotV_pos {a : Memref sig .scVector .vmem S25600 .f32} {sm : DmaSem sig} {m : ℕ} (h : 2 ≤ m ∧ valid L (m - 2)) :
    outSlotV d L fx a sm m = iprop(∃ g, Transfers.Flight countersEmb (thr d L) (SemLoc.dma sm) (default : HIx 22) NN
        iprop(oqPiece d L fx (m - 2) ∗ ((stg a).view.loc (thr d L) ↦[(stg a).view.set]{fullShare} g))
      ∗ (a.view.loc (thr d L) ↦[Finset.univ \ (stg a).view.set]{fullShare} g)) := by unfold outSlotV; rw [if_pos h]
theorem outSlotV_neg {a : Memref sig .scVector .vmem S25600 .f32} {sm : DmaSem sig} {m : ℕ} (h : ¬ (2 ≤ m ∧ valid L (m - 2))) :
    outSlotV d L fx a sm m = iprop((∃ g, a.view.loc (thr d L) ↦{fullShare} g) ∗ semVal (thr d L, SemLoc.dma sm) 0) := by
  unfold outSlotV; rw [if_neg h]

/-- A fetch just issued: the staging row will hold what the transfer reads, which is the piece. -/
theorem fl_inV {off : Fin 2 → ℕ} {n : ℕ} (h : off = ![2, pos L n]) (p : ∀ a, off a + S1x3200.size a ≤ S22x1600000.size a) (v : valid L n)
    (a : Memref sig .scVector .vmem S8x3200 .f32) (sm : DmaSem sig) :
    (iprop(∃ (gold : Buf (Elt F) (a.view.loc (thr d L))) (w : S1x3200.Idx → Elt F .f32),
        ⌜∀ y, w y = ((xtW).slice (Rect.unit (s := S22x1600000) off S1x3200.size p) (fun _ => rfl)).view.read (Elt F) fx y⌝
        ∗ Transfers.Flight countersEmb (thr d L) (SemLoc.dma sm) (default : HIx 22) NN
          iprop((a.view.loc (thr d L) ↦{fullShare} a.view.writes (Elt F) gold [⟨rowRect, w⟩])
            ∗ (((xtW).slice (Rect.unit (s := S22x1600000) off S1x3200.size p) (fun _ => rfl)).view.loc (thr d L)
                ↦[((xtW).slice (Rect.unit (s := S22x1600000) off S1x3200.size p) (fun _ => rfl)).view.set]{fullShare} fx))) : sProp 𝕄)
      ⊢ inSlotV d L fx a sm n := by
  subst h
  rw [inSlotV_pos d L fx v]
  iintro ⟨%gold, %w, %hw, H⟩
  iexists _
  isplitr
  · ipureintro; exact inRow_fetch d L fx a gold w n hw
  · iexact H

set_option maxHeartbeats 4000000 in
/-- A write-out just issued from a flat staging buffer whose first 3200 elements are the staging row, itself piece
    `n` of the argument row: the piece of the result will hold the row's elements. -/
theorem fl_outV {off : Fin 1 → ℕ} {n : ℕ} (h : off = ![pos L n]) (p : ∀ a, off a + S3200.size a ≤ S1600000.size a) (v : valid L n)
    (ar : Memref sig .scVector .vmem S8x3200 .f32) (a : Memref sig .scVector .vmem S25600 .f32) (sm : DmaSem sig)
    (f0 : Buf (Elt F) ((oW).view.loc (thr d L))) (ga : Buf (Elt F) (ar.view.loc (thr d L))) (gb : Buf (Elt F) (a.view.loc (thr d L)))
    (hl : Lanes d L ar a ga gb 200) (hr : InRow d L fx ar ga n) :
    (iprop(∃ (w : S3200.Idx → Elt F .f32),
        ⌜∀ y, w y = (stg a).view.read (Elt F) gb y⌝
        ∗ Transfers.Flight countersEmb (thr d L) (SemLoc.dma sm) (default : HIx 22) NN
          iprop((((oW).slice (Rect.unit (s := S1600000) off S3200.size p) (fun _ => rfl)).view.loc (thr d L)
                ↦[((oW).slice (Rect.unit (s := S1600000) off S3200.size p) (fun _ => rfl)).view.set]{fullShare}
                  (((oW).slice (Rect.unit (s := S1600000) off S3200.size p) (fun _ => rfl)).view.writes (Elt F) f0 [⟨Rect.whole _, w⟩]))
            ∗ ((stg a).view.loc (thr d L) ↦[(stg a).view.set]{fullShare} gb))
        ∗ (a.view.loc (thr d L) ↦[Finset.univ \ (stg a).view.set]{fullShare} gb)) : sProp 𝕄)
      ⊢ outSlotV d L fx a sm (n + 2) := by
  subst h
  rw [outSlotV_pos d L fx (m := n + 2) ⟨by omega, by simpa using v⟩]
  iintro ⟨%w, %hw, H, R⟩
  have hD : (iprop(((outM L n).view.loc (thr d L) ↦[(outM L n).view.set]{fullShare} ((outM L n).view.writes (Elt F) f0 [⟨Rect.whole _, w⟩]))
          ∗ ((stg a).view.loc (thr d L) ↦[(stg a).view.set]{fullShare} gb)) : sProp 𝕄)
      ⊢ iprop(oqPiece d L fx (n + 2 - 2) ∗ ((stg a).view.loc (thr d L) ↦[(stg a).view.set]{fullShare} gb)) := by
    rw [Nat.add_sub_cancel]
    have e : (((outM L n).view.loc (thr d L) ↦[(outM L n).view.set]{fullShare} ((outM L n).view.writes (Elt F) f0 [⟨Rect.whole _, w⟩])) : sProp 𝕄)
        = oqPiece d L fx n := pointsTo_congr (out_written d L fx ar a n ga gb f0 w hw hl hr v)
    iintro ⟨H1, H2⟩
    isplitl [H1]
    · iapply (Entails.of_eq e); iexact H1
    · iexact H2
  iexists gb
  isplitl [H]
  · iapply (Transfers.Flight_mono countersEmb (thr d L) hD); iexact H
  · iexact R

/-- The result pieces outside the slots before trip `t`: those already written hold the row, the others some contents. -/
def oMix (t n : ℕ) : sProp 𝕄 := if n + 2 < 2 * t then oQ d L fx n else oP (F := F) d L n
theorem oMix_lt {t n : ℕ} (h : n + 2 < 2 * t) : oMix d L fx t n = oQ d L fx n := if_pos h
theorem oMix_ge {t n : ℕ} (h : ¬ n + 2 < 2 * t) : oMix d L fx t n = oP (F := F) d L n := if_neg h
theorem oMix_core (k : ℕ) : bigSep (oCore k) (oMix d L fx k) = bigSep (oCore k) (oMix d L fx (k + 1)) :=
  bigSep_congr fun n hn => by
    have hn' : n + 2 ≠ 2 * k ∧ n + 2 ≠ 2 * k + 1 ∧ n ≠ 2 * k ∧ n ≠ 2 * k + 1 := by
      simp only [oCore, Finset.mem_filter, Finset.mem_range] at hn; exact hn.2
    by_cases h : n + 2 < 2 * k
    · rw [oMix_lt d L fx h, oMix_lt d L fx (by omega)]
    · rw [oMix_ge d L fx h, oMix_ge d L fx (by omega)]
theorem oMix_zero : bigSep (oSet 0) (oMix d L fx 0) = bigSep (Finset.range 18) (oP (F := F) d L) := by
  rw [oSet_zero]; exact bigSep_congr fun n _ => oMix_ge d L fx (by omega)
theorem oMix_end : bigSep (oSet 8) (oMix d L fx 8) = bigSep (oSet 8) (oQ d L fx) :=
  bigSep_congr fun n hn => by
    have hn' : n < 18 ∧ n + 2 ≠ 16 ∧ n + 2 ≠ 17 := by simpa only [oSet, Finset.mem_filter, Finset.mem_range] using hn
    by_cases h : n + 2 < 2 * 8
    · exact oMix_lt d L fx h
    · rw [oMix_ge d L fx h, oP_neg (F := F) d L (by unfold valid; omega), oQ_neg d L fx (by unfold valid; omega)]

/-- The lane-copy loops: before trip `j` the first 16·j elements of the flat staging buffer are the staging row's. -/
def laneV0 (g4 : Buf (Elt F) ((a4).view.loc (thr d L))) (j : ℕ) (_ : PUnit) : sProp 𝕄 :=
  iprop(((a4).view.loc (thr d L) ↦{fullShare} g4) ∗ (∃ g, ((a6).view.loc (thr d L) ↦{fullShare} g) ∗ ⌜Lanes d L a4 a6 g4 g j⌝))
def laneV1 (g5 : Buf (Elt F) ((a5).view.loc (thr d L))) (j : ℕ) (_ : PUnit) : sProp 𝕄 :=
  iprop(((a5).view.loc (thr d L) ↦{fullShare} g5) ∗ (∃ g, ((a7).view.loc (thr d L) ↦{fullShare} g) ∗ ⌜Lanes d L a5 a7 g5 g j⌝))

def invV (t : ℕ) (_ : PUnit) : sProp 𝕄 :=
  iprop(Transfers.MayWaits (thr d L) (none : HIx 22) O
    ∗ (∃ W', ⌜∀ p ∈ W', p ∈ W ∨ p.2 = none⌝ ∗ owes (thr d L) O W')
    ∗ bigSep (xSet t) (xP d L fx) ∗ bigSep (oSet t) (oMix d L fx t)
    ∗ inSlotV d L fx a4 cc2_scratch4.sem (2 * t) ∗ outSlotV d L fx a6 cc2_scratch6.sem (2 * t)
    ∗ inSlotV d L fx a5 cc2_scratch5.sem (2 * t + 1) ∗ outSlotV d L fx a7 cc2_scratch7.sem (2 * t + 1))

/-- After the last trip nothing of the argument row is in a slot: the tile holds all its pieces. -/
theorem xRange_end : bigSep (xSet 8) (xP d L fx) ⊢ bigSep (Finset.range 18) (xP d L fx) := by
  rw [two_out (s := Finset.range 18) (a := 16) (b := 17) (by decide) (by decide) (by decide),
    show ((Finset.range 18).erase 16).erase 17 = xSet 8 by decide]
  iintro H
  isplitr; · iapply (Entails.of_eq (xP_neg d L fx (n := 16) (by unfold valid; omega)).symm); iempintro
  isplitr; · iapply (Entails.of_eq (xP_neg d L fx (n := 17) (by unfold valid; omega)).symm); iempintro
  iexact H
omit [FloatOps F] in
theorem oRange_end (Φ : ℕ → sProp 𝕄) : bigSep (Finset.range 18) Φ = iprop(Φ 14 ∗ Φ 15 ∗ bigSep (oSet 8) Φ) := by
  rw [two_out (s := Finset.range 18) (a := 14) (b := 15) (by decide) (by decide) (by decide),
    show ((Finset.range 18).erase 14).erase 15 = oSet 8 by decide]

/-- What the run starts from and ends with, beside an untouched rest `R`. -/
def runPre (R : sProp 𝕄) : sProp 𝕄 :=
    iprop(Transfers.MayWaits (thr d L) (none : HIx 22) O ∗ owes (thr d L) O W
        ∗ bigSep (Finset.range 18) (xP d L fx) ∗ bigSep (Finset.range 18) (oP (F := F) d L)
        ∗ (∃ g, (a4).view.loc (thr d L) ↦{fullShare} g) ∗ (∃ g, (a5).view.loc (thr d L) ↦{fullShare} g)
        ∗ (∃ g, (a6).view.loc (thr d L) ↦{fullShare} g) ∗ (∃ g, (a7).view.loc (thr d L) ↦{fullShare} g)
        ∗ semVal (thr d L, SemLoc.dma cc2_scratch4.sem) 0 ∗ semVal (thr d L, SemLoc.dma cc2_scratch5.sem) 0
        ∗ semVal (thr d L, SemLoc.dma cc2_scratch6.sem) 0 ∗ semVal (thr d L, SemLoc.dma cc2_scratch7.sem) 0 ∗ R)
def runPost (R : sProp 𝕄) : sProp 𝕄 :=
    iprop(bigSep (Finset.range 18) (xP d L fx) ∗ bigSep (Finset.range 18) (oQ d L fx)
            ∗ (∃ g, (a4).view.loc (thr d L) ↦{fullShare} g) ∗ (∃ g, (a5).view.loc (thr d L) ↦{fullShare} g)
            ∗ (∃ g, (a6).view.loc (thr d L) ↦{fullShare} g) ∗ (∃ g, (a7).view.loc (thr d L) ↦{fullShare} g)
            ∗ semVal (thr d L, SemLoc.dma cc2_scratch4.sem) 0 ∗ semVal (thr d L, SemLoc.dma cc2_scratch5.sem) 0
            ∗ semVal (thr d L, SemLoc.dma cc2_scratch6.sem) 0 ∗ semVal (thr d L, SemLoc.dma cc2_scratch7.sem) 0
            ∗ (∃ W', ⌜∀ p ∈ W', p ∈ W ∨ p.2 = none⌝ ∗ owes (thr d L) O W') ∗ R)

set_option maxHeartbeats 16000000 in
/-- The task's run: from its pieces of the argument row and of the result, the four staging buffers and the four
    semaphores at zero, to the same with every piece of the result holding the row's elements. -/
theorem tile_run (R : sProp 𝕄) :
    runPre d L O W fx R
      ⊢ wp frame (wpE (defs₀ (F := F)) 𝒱₀ (thr d L) none) Set.univ
          (cc2_sc_group L xtW (Memref.isWhole_whole _) oW (Memref.isWhole_whole _) a4 (Memref.isWhole_whole _) a5 (Memref.isWhole_whole _)
            a6 (Memref.isWhole_whole _) a7 (Memref.isWhole_whole _) cc2_scratch4 cc2_scratch5 cc2_scratch6 cc2_scratch7)
          fun _ => runPost d L O W fx R := by
  unfold runPre runPost
  have v0 : valid L 0 := Or.inl (by omega)
  have v1 : valid L 1 := Or.inl (by omega)
  have k2_h7 : k2_cond7 L = 1#1 := cond7_iff L
  iintro ⟨#Hmw, HO, HX, HOut, ⟨%g4, H4⟩, ⟨%g5, H5⟩, ⟨%g6, H6⟩, ⟨%g7, H7⟩, Hs8, Hs9, Hs10, Hs11, HR⟩
  ihave HX := (Entails.of_eq (xRange_split d L fx v0 v1)) $$ HX
  icases HX with ⟨X0, X1, HX⟩
  ihave X0 := (Entails.of_eq (in_congr d L (off_in0 L v0).symm (in_inb L _) (k2_off1_inb L 0) fx)) $$ X0
  ihave X1 := (Entails.of_eq (in_congr d L (off_in1 L v1).symm (in_inb L _) (k2_off1_inb L 1) fx)) $$ X1
  sl_unfold [cc2_sc_group]
  sl_exec
  ihave S8 := (fl_inV d L fx (off_in0 L v0) (k2_off1_inb L 0) v0 a4 cc2_scratch4.sem) $$ [Hs8]
  · iexists _, _
    isplitr
    rotate_left
    · iexact Hs8
    ipureintro; intro y; rfl
  ihave S9 := (fl_inV d L fx (off_in1 L v1) (k2_off1_inb L 1) v1 a5 cc2_scratch5.sem) $$ [Hs9]
  · iexists _, _
    isplitr
    rotate_left
    · iexact Hs9
    ipureintro; intro y; rfl
  sl_for (invV d L O W fx) $$ [HO HX HOut S8 S9 H6 H7 Hs10 Hs11]
  case region =>
    intro (k : Fin k2_t1_loop.trips) acc
    have hk : k.val < 8 := Nat.lt_of_lt_of_eq k.isLt trips1
    unfold invV
    iintro ⟨#Hmw, ⟨%W', %hW', HO⟩, HX, HOut, S8, S10, S9, S11⟩
    by_cases hk1 : 1 ≤ k.val
    · by_cases v3 : valid L (2 * k.val + 3)
      · -- the generic trip: both drains, both pieces worked, both next fetches issued
        have hk6 : k.val ≤ 6 := by unfold valid at v3; omega
        have k2_h1 : k2_cond1 k = 1#1 := (cond1_iff k).mpr (by omega)
        have k2_h2 : k2_cond2 L k = 1#1 := cond2_iff L k
        have k2_h3 : k2_cond3 L k = 1#1 := (cond3_iff L k).mpr (by omega)
        have k2_h4 : k2_cond4 k = 1#1 := (cond4_iff k).mpr (by omega)
        have k2_h5 : k2_cond5 L k = 1#1 := (cond5_iff L k).mpr (by first | (unfold valid big at *; omega) | (unfold big at *; omega) | omega)
        have k2_h6 : k2_cond6 L k = 1#1 := (cond6_iff L k).mpr (by first | (unfold valid big at *; omega) | (unfold big at *; omega) | omega)
        have v0 : valid L (2 * k.val) := by unfold valid big at *; omega
        have v1 : valid L (2 * k.val + 1) := by unfold valid big at *; omega
        have v2 : valid L (2 * k.val + 2) := by unfold valid big at *; omega
        have v3' : valid L (2 * k.val + 3) := by unfold valid big at *; omega
        have hm0 : 2 ≤ 2 * k.val ∧ valid L (2 * k.val - 2) := ⟨by omega, by unfold valid big at *; omega⟩
        have hm1 : 2 ≤ 2 * k.val + 1 ∧ valid L (2 * k.val + 1 - 2) := ⟨by omega, by unfold valid big at *; omega⟩
        ihave S8 := (Entails.of_eq (inSlotV_pos d L fx v0)) $$ S8
        icases S8 with ⟨%g4, %hin4, F8⟩
        ihave S9 := (Entails.of_eq (inSlotV_pos d L fx v1)) $$ S9
        icases S9 with ⟨%g5, %hin5, F9⟩
        ihave S10 := (Entails.of_eq (outSlotV_pos d L fx hm0)) $$ S10
        icases S10 with ⟨%g6, F10, R6⟩
        ihave S11 := (Entails.of_eq (outSlotV_pos d L fx hm1)) $$ S11
        icases S11 with ⟨%g7, F11, R7⟩
        ihave HX := (Entails.of_eq (xSet_out (xP d L fx) k.val hk)) $$ HX
        icases HX with ⟨X2, X3, HX⟩
        ihave X2 := (Entails.of_eq (xP_pos d L fx v2)) $$ X2
        ihave X2 := (Entails.of_eq (in_congr d L (off_6 L k v2).symm (in_inb L _) (k2_off6_inb L k k2_h3) fx)) $$ X2
        ihave X3 := (Entails.of_eq (xP_pos d L fx v3')) $$ X3
        ihave X3 := (Entails.of_eq (in_congr d L (off_11 L k v3').symm (in_inb L _) (k2_off11_inb L k k2_h6) fx)) $$ X3
        ihave HOut := (Entails.of_eq (oSet_out (oMix d L fx k.val) k.val hk)) $$ HOut
        icases HOut with ⟨Y0, Y1, HOut⟩
        ihave Y0 := (Entails.of_eq ((oMix_ge d L fx (t := k.val) (n := 2 * k.val) (by omega)).trans (oP_pos (F := F) d L v0))) $$ Y0
        icases Y0 with ⟨%f0, Y0⟩
        ihave Y0 := (Entails.of_eq (out_congr d L (off_5 L k v0).symm (out_inb L _) (k2_off5_inb L k k2_h2) f0)) $$ Y0
        ihave Y1 := (Entails.of_eq ((oMix_ge d L fx (t := k.val) (n := 2 * k.val + 1) (by omega)).trans (oP_pos (F := F) d L v1))) $$ Y1
        icases Y1 with ⟨%f1, Y1⟩
        ihave Y1 := (Entails.of_eq (out_congr d L (off_10 L k v1).symm (out_inb L _) (k2_off10_inb L k k2_h5) f1)) $$ Y1
        sl_exec
        sl_for (laneV0 d L g4) $$ [F8_dst R6]
        case region =>
          intro (j : Fin k2_t2_loop.trips) _
          unfold laneV0
          iintro ⟨HA, %g, HB, %hl⟩
          sl_exec
          sl_step
          isplitl [HA]; · iexact HA
          iexists _; isplitl [HB]; · iexact HB
          ipureintro; exact lanes_step d L a4 a6 g4 g j _ _ hl
        · unfold laneV0
          isplitl [F8_dst]; · iexact F8_dst
          iexists _; isplitl [R6]; · iexact R6
          ipureintro; exact lanes_zero d L a4 a6 g4 _
        iintro %_ HI
        unfold laneV0
        icases HI with ⟨H4, %g6', H6, %hl6⟩
        have hl6 : Lanes d L a4 a6 g4 g6' 200 := Eq.mp (congrArg (Lanes d L a4 a6 g4 g6') trips2) hl6
        sl_exec
        sl_for (laneV1 d L g5) $$ [F9_dst R7]
        case region =>
          intro (j : Fin k2_t3_loop.trips) _
          unfold laneV1
          iintro ⟨HA, %g, HB, %hl⟩
          sl_exec
          sl_step
          isplitl [HA]; · iexact HA
          iexists _; isplitl [HB]; · iexact HB
          ipureintro; exact lanes_step' d L a5 a7 g5 g j _ _ hl
        · unfold laneV1
          isplitl [F9_dst]; · iexact F9_dst
          iexists _; isplitl [R7]; · iexact R7
          ipureintro; exact lanes_zero d L a5 a7 g5 _
        iintro %_ HI
        unfold laneV1
        icases HI with ⟨H5, %g7', H7, %hl7⟩
        have hl7 : Lanes d L a5 a7 g5 g7' 200 := Eq.mp (congrArg (Lanes d L a5 a7 g5 g7') trips3) hl7
        sl_exec
        sl_step
        isplitr; · iexact Hmw
        isplitl [HO]
        · iexists _; isplitr
          rotate_left
          · iexact HO
          ipureintro; intro p hp
          rcases Finset.mem_insert.mp hp with rfl | hp
          · exact .inr rfl
          rcases Finset.mem_insert.mp hp with rfl | hp
          · exact .inr rfl
          rcases Finset.mem_insert.mp hp with rfl | hp
          · exact .inr rfl
          rcases Finset.mem_insert.mp hp with rfl | hp
          · exact .inr rfl
          exact hW' p hp
        isplitl [HX F8_src F9_src]
        · iapply (Entails.of_eq (xSet_in (xP d L fx) k.val hk).symm)
          isplitl [F8_src]; · iapply (Entails.of_eq (xP_pos d L fx v0).symm); iexact F8_src
          isplitl [F9_src]; · iapply (Entails.of_eq (xP_pos d L fx v1).symm); iexact F9_src
          iexact HX
        isplitl [HOut F10_dst F11_dst]
        · iapply (Entails.of_eq (oSet_in (oMix d L fx (k.val + 1)) k.val hk (by omega)).symm)
          isplitl [F10_dst]; · iapply (Entails.of_eq ((oMix_lt d L fx (t := k.val + 1) (n := 2 * k.val - 2) (by omega)).trans (oQ_pos d L fx hm0.2)).symm); iexact F10_dst
          isplitl [F11_dst]
          · iapply (Entails.of_eq ((oMix_lt d L fx (t := k.val + 1) (n := 2 * k.val - 1) (by omega)).trans (oQ_pos d L fx (n := 2 * k.val - 1) (by have := hm1.2; rwa [show 2 * k.val + 1 - 2 = 2 * k.val - 1 by omega] at this))).symm)
            iapply (Entails.of_eq (congrArg (oqPiece d L fx) (show 2 * k.val + 1 - 2 = 2 * k.val - 1 by omega))); iexact F11_dst
          iapply (Entails.of_eq (oMix_core d L fx k.val)); iexact HOut
        isplitl [F8]
        · iapply (Entails.of_eq (congrArg (inSlotV d L fx a4 cc2_scratch4.sem) (show 2 * k.val + 2 = 2 * (k.val + 1) by ring)))
          iapply (fl_inV d L fx (off_6 L k v2) (k2_off6_inb L k k2_h3) v2 a4 cc2_scratch4.sem); iexists _, _
          isplitr
          rotate_left
          · iexact F8
          ipureintro; intro y; rfl
        isplitl [F10 H6]
        · iapply (Entails.of_eq (congrArg (outSlotV d L fx a6 cc2_scratch6.sem) (show 2 * k.val + 2 = 2 * (k.val + 1) by ring)))
          iapply (fl_outV d L fx (off_5 L k v0) (k2_off5_inb L k k2_h2) v0 a4 a6 cc2_scratch6.sem f0 g4 g6' hl6 hin4); iexists _
          isplitr
          rotate_left
          · isplitl [F10]; · iexact F10
            iexact H6
          ipureintro; intro y; rfl
        isplitl [F9]
        · iapply (Entails.of_eq (congrArg (inSlotV d L fx a5 cc2_scratch5.sem) (show 2 * k.val + 3 = 2 * (k.val + 1) + 1 by ring)))
          iapply (fl_inV d L fx (off_11 L k v3') (k2_off11_inb L k k2_h6) v3' a5 cc2_scratch5.sem); iexists _, _
          isplitr
          rotate_left
          · iexact F9
          ipureintro; intro y; rfl
        · iapply (Entails.of_eq (congrArg (outSlotV d L fx a7 cc2_scratch7.sem) (show 2 * k.val + 1 + 2 = 2 * (k.val + 1) + 1 by ring)))
          iapply (fl_outV d L fx (off_10 L k v1) (k2_off10_inb L k k2_h5) v1 a5 a7 cc2_scratch7.sem f1 g5 g7' hl7 hin5); iexists _
          isplitr
          rotate_left
          · isplitl [F11]; · iexact F11
            iexact H7
          ipureintro; intro y; rfl
      · by_cases h6 : k.val = 6
        · have hb : ¬ big L := fun hb => v3 (Or.inr ⟨by omega, hb⟩)
          -- trip 6 of a tile with fifteen pieces: no sixteenth piece to fetch
          have k2_h1 : k2_cond1 k = 1#1 := (cond1_iff k).mpr (by omega)
          have k2_h2 : k2_cond2 L k = 1#1 := cond2_iff L k
          have k2_h3 : k2_cond3 L k = 1#1 := (cond3_iff L k).mpr (by omega)
          have k2_h4 : k2_cond4 k = 1#1 := (cond4_iff k).mpr (by omega)
          have k2_h5 : k2_cond5 L k = 1#1 := (cond5_iff L k).mpr (by first | (unfold valid big at *; omega) | (unfold big at *; omega) | omega)
          have k2_h6 : ¬ k2_cond6 L k = 1#1 := fun h => absurd ((cond6_iff L k).mp h) (by first | (unfold valid big at *; omega) | (unfold big at *; omega) | omega)
          have v0 : valid L (2 * k.val) := by unfold valid big at *; omega
          have v1 : valid L (2 * k.val + 1) := by unfold valid big at *; omega
          have v2 : valid L (2 * k.val + 2) := by unfold valid big at *; omega
          have v3' : ¬ valid L (2 * k.val + 3) := by unfold valid big at *; omega
          have hm0 : 2 ≤ 2 * k.val ∧ valid L (2 * k.val - 2) := ⟨by omega, by unfold valid big at *; omega⟩
          have hm1 : 2 ≤ 2 * k.val + 1 ∧ valid L (2 * k.val + 1 - 2) := ⟨by omega, by unfold valid big at *; omega⟩
          ihave S8 := (Entails.of_eq (inSlotV_pos d L fx v0)) $$ S8
          icases S8 with ⟨%g4, %hin4, F8⟩
          ihave S9 := (Entails.of_eq (inSlotV_pos d L fx v1)) $$ S9
          icases S9 with ⟨%g5, %hin5, F9⟩
          ihave S10 := (Entails.of_eq (outSlotV_pos d L fx hm0)) $$ S10
          icases S10 with ⟨%g6, F10, R6⟩
          ihave S11 := (Entails.of_eq (outSlotV_pos d L fx hm1)) $$ S11
          icases S11 with ⟨%g7, F11, R7⟩
          ihave HX := (Entails.of_eq (xSet_out (xP d L fx) k.val hk)) $$ HX
          icases HX with ⟨X2, -, HX⟩
          ihave X2 := (Entails.of_eq (xP_pos d L fx v2)) $$ X2
          ihave X2 := (Entails.of_eq (in_congr d L (off_6 L k v2).symm (in_inb L _) (k2_off6_inb L k k2_h3) fx)) $$ X2
          ihave HOut := (Entails.of_eq (oSet_out (oMix d L fx k.val) k.val hk)) $$ HOut
          icases HOut with ⟨Y0, Y1, HOut⟩
          ihave Y0 := (Entails.of_eq ((oMix_ge d L fx (t := k.val) (n := 2 * k.val) (by omega)).trans (oP_pos (F := F) d L v0))) $$ Y0
          icases Y0 with ⟨%f0, Y0⟩
          ihave Y0 := (Entails.of_eq (out_congr d L (off_5 L k v0).symm (out_inb L _) (k2_off5_inb L k k2_h2) f0)) $$ Y0
          ihave Y1 := (Entails.of_eq ((oMix_ge d L fx (t := k.val) (n := 2 * k.val + 1) (by omega)).trans (oP_pos (F := F) d L v1))) $$ Y1
          icases Y1 with ⟨%f1, Y1⟩
          ihave Y1 := (Entails.of_eq (out_congr d L (off_10 L k v1).symm (out_inb L _) (k2_off10_inb L k k2_h5) f1)) $$ Y1
          sl_exec
          sl_for (laneV0 d L g4) $$ [F8_dst R6]
          case region =>
            intro (j : Fin k2_t2_loop.trips) _
            unfold laneV0
            iintro ⟨HA, %g, HB, %hl⟩
            sl_exec
            sl_step
            isplitl [HA]; · iexact HA
            iexists _; isplitl [HB]; · iexact HB
            ipureintro; exact lanes_step d L a4 a6 g4 g j _ _ hl
          · unfold laneV0
            isplitl [F8_dst]; · iexact F8_dst
            iexists _; isplitl [R6]; · iexact R6
            ipureintro; exact lanes_zero d L a4 a6 g4 _
          iintro %_ HI
          unfold laneV0
          icases HI with ⟨H4, %g6', H6, %hl6⟩
          have hl6 : Lanes d L a4 a6 g4 g6' 200 := Eq.mp (congrArg (Lanes d L a4 a6 g4 g6') trips2) hl6
          sl_exec
          sl_for (laneV1 d L g5) $$ [F9_dst R7]
          case region =>
            intro (j : Fin k2_t3_loop.trips) _
            unfold laneV1
            iintro ⟨HA, %g, HB, %hl⟩
            sl_exec
            sl_step
            isplitl [HA]; · iexact HA
            iexists _; isplitl [HB]; · iexact HB
            ipureintro; exact lanes_step' d L a5 a7 g5 g j _ _ hl
          · unfold laneV1
            isplitl [F9_dst]; · iexact F9_dst
            iexists _; isplitl [R7]; · iexact R7
            ipureintro; exact lanes_zero d L a5 a7 g5 _
          iintro %_ HI
          unfold laneV1
          icases HI with ⟨H5, %g7', H7, %hl7⟩
          have hl7 : Lanes d L a5 a7 g5 g7' 200 := Eq.mp (congrArg (Lanes d L a5 a7 g5 g7') trips3) hl7
          sl_exec
          sl_step
          isplitr; · iexact Hmw
          isplitl [HO]
          · iexists _; isplitr
            rotate_left
            · iexact HO
            ipureintro; intro p hp
            rcases Finset.mem_insert.mp hp with rfl | hp
            · exact .inr rfl
            rcases Finset.mem_insert.mp hp with rfl | hp
            · exact .inr rfl
            rcases Finset.mem_insert.mp hp with rfl | hp
            · exact .inr rfl
            rcases Finset.mem_insert.mp hp with rfl | hp
            · exact .inr rfl
            exact hW' p hp
          isplitl [HX F8_src F9_src]
          · iapply (Entails.of_eq (xSet_in (xP d L fx) k.val hk).symm)
            isplitl [F8_src]; · iapply (Entails.of_eq (xP_pos d L fx v0).symm); iexact F8_src
            isplitl [F9_src]; · iapply (Entails.of_eq (xP_pos d L fx v1).symm); iexact F9_src
            iexact HX
          isplitl [HOut F10_dst F11_dst]
          · iapply (Entails.of_eq (oSet_in (oMix d L fx (k.val + 1)) k.val hk (by omega)).symm)
            isplitl [F10_dst]; · iapply (Entails.of_eq ((oMix_lt d L fx (t := k.val + 1) (n := 2 * k.val - 2) (by omega)).trans (oQ_pos d L fx hm0.2)).symm); iexact F10_dst
            isplitl [F11_dst]
            · iapply (Entails.of_eq ((oMix_lt d L fx (t := k.val + 1) (n := 2 * k.val - 1) (by omega)).trans (oQ_pos d L fx (n := 2 * k.val - 1) (by have := hm1.2; rwa [show 2 * k.val + 1 - 2 = 2 * k.val - 1 by omega] at this))).symm)
              iapply (Entails.of_eq (congrArg (oqPiece d L fx) (show 2 * k.val + 1 - 2 = 2 * k.val - 1 by omega))); iexact F11_dst
            iapply (Entails.of_eq (oMix_core d L fx k.val)); iexact HOut
          isplitl [F8]
          · iapply (Entails.of_eq (congrArg (inSlotV d L fx a4 cc2_scratch4.sem) (show 2 * k.val + 2 = 2 * (k.val + 1) by ring)))
            iapply (fl_inV d L fx (off_6 L k v2) (k2_off6_inb L k k2_h3) v2 a4 cc2_scratch4.sem); iexists _, _
            isplitr
            rotate_left
            · iexact F8
            ipureintro; intro y; rfl
          isplitl [F10 H6]
          · iapply (Entails.of_eq (congrArg (outSlotV d L fx a6 cc2_scratch6.sem) (show 2 * k.val + 2 = 2 * (k.val + 1) by ring)))
            iapply (fl_outV d L fx (off_5 L k v0) (k2_off5_inb L k k2_h2) v0 a4 a6 cc2_scratch6.sem f0 g4 g6' hl6 hin4); iexists _
            isplitr
            rotate_left
            · isplitl [F10]; · iexact F10
              iexact H6
            ipureintro; intro y; rfl
          isplitl [H5 F9]
          · iapply (Entails.of_eq (congrArg (inSlotV d L fx a5 cc2_scratch5.sem) (show 2 * k.val + 3 = 2 * (k.val + 1) + 1 by ring)))
            iapply (Entails.of_eq (inSlotV_neg d L fx v3').symm)
            isplitl [H5]; · iexists _; iexact H5
            iexact F9
          · iapply (Entails.of_eq (congrArg (outSlotV d L fx a7 cc2_scratch7.sem) (show 2 * k.val + 1 + 2 = 2 * (k.val + 1) + 1 by ring)))
            iapply (fl_outV d L fx (off_10 L k v1) (k2_off10_inb L k k2_h5) v1 a5 a7 cc2_scratch7.sem f1 g5 g7' hl7 hin5); iexists _
            isplitr
            rotate_left
            · isplitl [F11]; · iexact F11
              iexact H7
            ipureintro; intro y; rfl
        · have h7 : k.val = 7 := by unfold valid at v3; omega
          by_cases hb : big L
          · -- the last trip of a tile with sixteen pieces: nothing more to fetch
            have k2_h1 : k2_cond1 k = 1#1 := (cond1_iff k).mpr (by omega)
            have k2_h2 : k2_cond2 L k = 1#1 := cond2_iff L k
            have k2_h3 : ¬ k2_cond3 L k = 1#1 := fun h => absurd ((cond3_iff L k).mp h) (by omega)
            have k2_h4 : k2_cond4 k = 1#1 := (cond4_iff k).mpr (by omega)
            have k2_h5 : k2_cond5 L k = 1#1 := (cond5_iff L k).mpr (by first | (unfold valid big at *; omega) | (unfold big at *; omega) | omega)
            have k2_h6 : ¬ k2_cond6 L k = 1#1 := fun h => absurd ((cond6_iff L k).mp h) (by first | (unfold valid big at *; omega) | (unfold big at *; omega) | omega)
            have v0 : valid L (2 * k.val) := by unfold valid big at *; omega
            have v1 : valid L (2 * k.val + 1) := by unfold valid big at *; omega
            have v2 : ¬ valid L (2 * k.val + 2) := by unfold valid big at *; omega
            have v3' : ¬ valid L (2 * k.val + 3) := by unfold valid big at *; omega
            have hm0 : 2 ≤ 2 * k.val ∧ valid L (2 * k.val - 2) := ⟨by omega, by unfold valid big at *; omega⟩
            have hm1 : 2 ≤ 2 * k.val + 1 ∧ valid L (2 * k.val + 1 - 2) := ⟨by omega, by unfold valid big at *; omega⟩
            ihave S8 := (Entails.of_eq (inSlotV_pos d L fx v0)) $$ S8
            icases S8 with ⟨%g4, %hin4, F8⟩
            ihave S9 := (Entails.of_eq (inSlotV_pos d L fx v1)) $$ S9
            icases S9 with ⟨%g5, %hin5, F9⟩
            ihave S10 := (Entails.of_eq (outSlotV_pos d L fx hm0)) $$ S10
            icases S10 with ⟨%g6, F10, R6⟩
            ihave S11 := (Entails.of_eq (outSlotV_pos d L fx hm1)) $$ S11
            icases S11 with ⟨%g7, F11, R7⟩
            ihave HX := (Entails.of_eq (xSet_out (xP d L fx) k.val hk)) $$ HX
            icases HX with ⟨-, -, HX⟩
            ihave HOut := (Entails.of_eq (oSet_out (oMix d L fx k.val) k.val hk)) $$ HOut
            icases HOut with ⟨Y0, Y1, HOut⟩
            ihave Y0 := (Entails.of_eq ((oMix_ge d L fx (t := k.val) (n := 2 * k.val) (by omega)).trans (oP_pos (F := F) d L v0))) $$ Y0
            icases Y0 with ⟨%f0, Y0⟩
            ihave Y0 := (Entails.of_eq (out_congr d L (off_5 L k v0).symm (out_inb L _) (k2_off5_inb L k k2_h2) f0)) $$ Y0
            ihave Y1 := (Entails.of_eq ((oMix_ge d L fx (t := k.val) (n := 2 * k.val + 1) (by omega)).trans (oP_pos (F := F) d L v1))) $$ Y1
            icases Y1 with ⟨%f1, Y1⟩
            ihave Y1 := (Entails.of_eq (out_congr d L (off_10 L k v1).symm (out_inb L _) (k2_off10_inb L k k2_h5) f1)) $$ Y1
            sl_exec
            sl_for (laneV0 d L g4) $$ [F8_dst R6]
            case region =>
              intro (j : Fin k2_t2_loop.trips) _
              unfold laneV0
              iintro ⟨HA, %g, HB, %hl⟩
              sl_exec
              sl_step
              isplitl [HA]; · iexact HA
              iexists _; isplitl [HB]; · iexact HB
              ipureintro; exact lanes_step d L a4 a6 g4 g j _ _ hl
            · unfold laneV0
              isplitl [F8_dst]; · iexact F8_dst
              iexists _; isplitl [R6]; · iexact R6
              ipureintro; exact lanes_zero d L a4 a6 g4 _
            iintro %_ HI
            unfold laneV0
            icases HI with ⟨H4, %g6', H6, %hl6⟩
            have hl6 : Lanes d L a4 a6 g4 g6' 200 := Eq.mp (congrArg (Lanes d L a4 a6 g4 g6') trips2) hl6
            sl_exec
            sl_for (laneV1 d L g5) $$ [F9_dst R7]
            case region =>
              intro (j : Fin k2_t3_loop.trips) _
              unfold laneV1
              iintro ⟨HA, %g, HB, %hl⟩
              sl_exec
              sl_step
              isplitl [HA]; · iexact HA
              iexists _; isplitl [HB]; · iexact HB
              ipureintro; exact lanes_step' d L a5 a7 g5 g j _ _ hl
            · unfold laneV1
              isplitl [F9_dst]; · iexact F9_dst
              iexists _; isplitl [R7]; · iexact R7
              ipureintro; exact lanes_zero d L a5 a7 g5 _
            iintro %_ HI
            unfold laneV1
            icases HI with ⟨H5, %g7', H7, %hl7⟩
            have hl7 : Lanes d L a5 a7 g5 g7' 200 := Eq.mp (congrArg (Lanes d L a5 a7 g5 g7') trips3) hl7
            sl_exec
            sl_step
            isplitr; · iexact Hmw
            isplitl [HO]
            · iexists _; isplitr
              rotate_left
              · iexact HO
              ipureintro; intro p hp
              rcases Finset.mem_insert.mp hp with rfl | hp
              · exact .inr rfl
              rcases Finset.mem_insert.mp hp with rfl | hp
              · exact .inr rfl
              rcases Finset.mem_insert.mp hp with rfl | hp
              · exact .inr rfl
              rcases Finset.mem_insert.mp hp with rfl | hp
              · exact .inr rfl
              exact hW' p hp
            isplitl [HX F8_src F9_src]
            · iapply (Entails.of_eq (xSet_in (xP d L fx) k.val hk).symm)
              isplitl [F8_src]; · iapply (Entails.of_eq (xP_pos d L fx v0).symm); iexact F8_src
              isplitl [F9_src]; · iapply (Entails.of_eq (xP_pos d L fx v1).symm); iexact F9_src
              iexact HX
            isplitl [HOut F10_dst F11_dst]
            · iapply (Entails.of_eq (oSet_in (oMix d L fx (k.val + 1)) k.val hk (by omega)).symm)
              isplitl [F10_dst]; · iapply (Entails.of_eq ((oMix_lt d L fx (t := k.val + 1) (n := 2 * k.val - 2) (by omega)).trans (oQ_pos d L fx hm0.2)).symm); iexact F10_dst
              isplitl [F11_dst]
              · iapply (Entails.of_eq ((oMix_lt d L fx (t := k.val + 1) (n := 2 * k.val - 1) (by omega)).trans (oQ_pos d L fx (n := 2 * k.val - 1) (by have := hm1.2; rwa [show 2 * k.val + 1 - 2 = 2 * k.val - 1 by omega] at this))).symm)
                iapply (Entails.of_eq (congrArg (oqPiece d L fx) (show 2 * k.val + 1 - 2 = 2 * k.val - 1 by omega))); iexact F11_dst
              iapply (Entails.of_eq (oMix_core d L fx k.val)); iexact HOut
            isplitl [H4 F8]
            · iapply (Entails.of_eq (congrArg (inSlotV d L fx a4 cc2_scratch4.sem) (show 2 * k.val + 2 = 2 * (k.val + 1) by ring)))
              iapply (Entails.of_eq (inSlotV_neg d L fx v2).symm)
              isplitl [H4]; · iexists _; iexact H4
              iexact F8
            isplitl [F10 H6]
            · iapply (Entails.of_eq (congrArg (outSlotV d L fx a6 cc2_scratch6.sem) (show 2 * k.val + 2 = 2 * (k.val + 1) by ring)))
              iapply (fl_outV d L fx (off_5 L k v0) (k2_off5_inb L k k2_h2) v0 a4 a6 cc2_scratch6.sem f0 g4 g6' hl6 hin4); iexists _
              isplitr
              rotate_left
              · isplitl [F10]; · iexact F10
                iexact H6
              ipureintro; intro y; rfl
            isplitl [H5 F9]
            · iapply (Entails.of_eq (congrArg (inSlotV d L fx a5 cc2_scratch5.sem) (show 2 * k.val + 3 = 2 * (k.val + 1) + 1 by ring)))
              iapply (Entails.of_eq (inSlotV_neg d L fx v3').symm)
              isplitl [H5]; · iexists _; iexact H5
              iexact F9
            · iapply (Entails.of_eq (congrArg (outSlotV d L fx a7 cc2_scratch7.sem) (show 2 * k.val + 1 + 2 = 2 * (k.val + 1) + 1 by ring)))
              iapply (fl_outV d L fx (off_10 L k v1) (k2_off10_inb L k k2_h5) v1 a5 a7 cc2_scratch7.sem f1 g5 g7' hl7 hin5); iexists _
              isplitr
              rotate_left
              · isplitl [F11]; · iexact F11
                iexact H7
              ipureintro; intro y; rfl
          · -- the last trip of a tile with fifteen pieces: the second slot only drains
            have k2_h1 : k2_cond1 k = 1#1 := (cond1_iff k).mpr (by omega)
            have k2_h2 : k2_cond2 L k = 1#1 := cond2_iff L k
            have k2_h3 : ¬ k2_cond3 L k = 1#1 := fun h => absurd ((cond3_iff L k).mp h) (by omega)
            have k2_h4 : k2_cond4 k = 1#1 := (cond4_iff k).mpr (by omega)
            have k2_h5 : ¬ k2_cond5 L k = 1#1 := fun h => absurd ((cond5_iff L k).mp h) (by first | (unfold valid big at *; omega) | (unfold big at *; omega) | omega)
            have k2_h6 : ¬ k2_cond6 L k = 1#1 := fun h => absurd ((cond6_iff L k).mp h) (by first | (unfold valid big at *; omega) | (unfold big at *; omega) | omega)
            have v0 : valid L (2 * k.val) := by unfold valid big at *; omega
            have v1 : ¬ valid L (2 * k.val + 1) := by unfold valid big at *; omega
            have v2 : ¬ valid L (2 * k.val + 2) := by unfold valid big at *; omega
            have v3' : ¬ valid L (2 * k.val + 3) := by unfold valid big at *; omega
            have hm0 : 2 ≤ 2 * k.val ∧ valid L (2 * k.val - 2) := ⟨by omega, by unfold valid big at *; omega⟩
            have hm1 : 2 ≤ 2 * k.val + 1 ∧ valid L (2 * k.val + 1 - 2) := ⟨by omega, by unfold valid big at *; omega⟩
            ihave S8 := (Entails.of_eq (inSlotV_pos d L fx v0)) $$ S8
            icases S8 with ⟨%g4, %hin4, F8⟩
            ihave S9 := (Entails.of_eq (inSlotV_neg d L fx v1)) $$ S9
            icases S9 with ⟨⟨%g5, H5⟩, F9⟩
            ihave S10 := (Entails.of_eq (outSlotV_pos d L fx hm0)) $$ S10
            icases S10 with ⟨%g6, F10, R6⟩
            ihave S11 := (Entails.of_eq (outSlotV_pos d L fx hm1)) $$ S11
            icases S11 with ⟨%g7, F11, R7⟩
            ihave HX := (Entails.of_eq (xSet_out (xP d L fx) k.val hk)) $$ HX
            icases HX with ⟨-, -, HX⟩
            ihave HOut := (Entails.of_eq (oSet_out (oMix d L fx k.val) k.val hk)) $$ HOut
            icases HOut with ⟨Y0, -, HOut⟩
            ihave Y0 := (Entails.of_eq ((oMix_ge d L fx (t := k.val) (n := 2 * k.val) (by omega)).trans (oP_pos (F := F) d L v0))) $$ Y0
            icases Y0 with ⟨%f0, Y0⟩
            ihave Y0 := (Entails.of_eq (out_congr d L (off_5 L k v0).symm (out_inb L _) (k2_off5_inb L k k2_h2) f0)) $$ Y0
            sl_exec
            sl_for (laneV0 d L g4) $$ [F8_dst R6]
            case region =>
              intro (j : Fin k2_t2_loop.trips) _
              unfold laneV0
              iintro ⟨HA, %g, HB, %hl⟩
              sl_exec
              sl_step
              isplitl [HA]; · iexact HA
              iexists _; isplitl [HB]; · iexact HB
              ipureintro; exact lanes_step d L a4 a6 g4 g j _ _ hl
            · unfold laneV0
              isplitl [F8_dst]; · iexact F8_dst
              iexists _; isplitl [R6]; · iexact R6
              ipureintro; exact lanes_zero d L a4 a6 g4 _
            iintro %_ HI
            unfold laneV0
            icases HI with ⟨H4, %g6', H6, %hl6⟩
            have hl6 : Lanes d L a4 a6 g4 g6' 200 := Eq.mp (congrArg (Lanes d L a4 a6 g4 g6') trips2) hl6
            sl_exec
            sl_step
            isplitr; · iexact Hmw
            isplitl [HO]
            · iexists _; isplitr
              rotate_left
              · iexact HO
              ipureintro; intro p hp
              rcases Finset.mem_insert.mp hp with rfl | hp
              · exact .inr rfl
              rcases Finset.mem_insert.mp hp with rfl | hp
              · exact .inr rfl
              rcases Finset.mem_insert.mp hp with rfl | hp
              · exact .inr rfl
              exact hW' p hp
            isplitl [HX F8_src]
            · iapply (Entails.of_eq (xSet_in (xP d L fx) k.val hk).symm)
              isplitl [F8_src]; · iapply (Entails.of_eq (xP_pos d L fx v0).symm); iexact F8_src
              isplitr; · iapply (Entails.of_eq (xP_neg d L fx v1).symm); iempintro
              iexact HX
            isplitl [HOut F10_dst F11_dst]
            · iapply (Entails.of_eq (oSet_in (oMix d L fx (k.val + 1)) k.val hk (by omega)).symm)
              isplitl [F10_dst]; · iapply (Entails.of_eq ((oMix_lt d L fx (t := k.val + 1) (n := 2 * k.val - 2) (by omega)).trans (oQ_pos d L fx hm0.2)).symm); iexact F10_dst
              isplitl [F11_dst]
              · iapply (Entails.of_eq ((oMix_lt d L fx (t := k.val + 1) (n := 2 * k.val - 1) (by omega)).trans (oQ_pos d L fx (n := 2 * k.val - 1) (by have := hm1.2; rwa [show 2 * k.val + 1 - 2 = 2 * k.val - 1 by omega] at this))).symm)
                iapply (Entails.of_eq (congrArg (oqPiece d L fx) (show 2 * k.val + 1 - 2 = 2 * k.val - 1 by omega))); iexact F11_dst
              iapply (Entails.of_eq (oMix_core d L fx k.val)); iexact HOut
            isplitl [H4 F8]
            · iapply (Entails.of_eq (congrArg (inSlotV d L fx a4 cc2_scratch4.sem) (show 2 * k.val + 2 = 2 * (k.val + 1) by ring)))
              iapply (Entails.of_eq (inSlotV_neg d L fx v2).symm)
              isplitl [H4]; · iexists _; iexact H4
              iexact F8
            isplitl [F10 H6]
            · iapply (Entails.of_eq (congrArg (outSlotV d L fx a6 cc2_scratch6.sem) (show 2 * k.val + 2 = 2 * (k.val + 1) by ring)))
              iapply (fl_outV d L fx (off_5 L k v0) (k2_off5_inb L k k2_h2) v0 a4 a6 cc2_scratch6.sem f0 g4 g6' hl6 hin4); iexists _
              isplitr
              rotate_left
              · isplitl [F10]; · iexact F10
                iexact H6
              ipureintro; intro y; rfl
            isplitl [H5 F9]
            · iapply (Entails.of_eq (congrArg (inSlotV d L fx a5 cc2_scratch5.sem) (show 2 * k.val + 3 = 2 * (k.val + 1) + 1 by ring)))
              iapply (Entails.of_eq (inSlotV_neg d L fx v3').symm)
              isplitl [H5]; · iexists _; iexact H5
              iexact F9
            · iapply (Entails.of_eq (outSlotV_neg d L fx (m := 2 * (k.val + 1) + 1) (by intro h; apply v1; have := h.2; rwa [show 2 * (k.val + 1) + 1 - 2 = 2 * k.val + 1 by omega] at this)).symm)
              isplitl [R7]; · iexists _; iexact R7
              iexact F11
    · have hk0 : k.val = 0 := by omega
      -- the first trip: nothing to drain
      have k2_h1 : ¬ k2_cond1 k = 1#1 := fun h => absurd ((cond1_iff k).mp h) (by omega)
      have k2_h2 : k2_cond2 L k = 1#1 := cond2_iff L k
      have k2_h3 : k2_cond3 L k = 1#1 := (cond3_iff L k).mpr (by omega)
      have k2_h4 : ¬ k2_cond4 k = 1#1 := fun h => absurd ((cond4_iff k).mp h) (by omega)
      have k2_h5 : k2_cond5 L k = 1#1 := (cond5_iff L k).mpr (by first | (unfold valid big at *; omega) | (unfold big at *; omega) | omega)
      have k2_h6 : k2_cond6 L k = 1#1 := (cond6_iff L k).mpr (by first | (unfold valid big at *; omega) | (unfold big at *; omega) | omega)
      have v0 : valid L (2 * k.val) := by unfold valid big at *; omega
      have v1 : valid L (2 * k.val + 1) := by unfold valid big at *; omega
      have v2 : valid L (2 * k.val + 2) := by unfold valid big at *; omega
      have v3' : valid L (2 * k.val + 3) := by unfold valid big at *; omega
      have hm0 : ¬ (2 ≤ 2 * k.val ∧ valid L (2 * k.val - 2)) := by omega
      have hm1 : ¬ (2 ≤ 2 * k.val + 1 ∧ valid L (2 * k.val + 1 - 2)) := by omega
      ihave S8 := (Entails.of_eq (inSlotV_pos d L fx v0)) $$ S8
      icases S8 with ⟨%g4, %hin4, F8⟩
      ihave S9 := (Entails.of_eq (inSlotV_pos d L fx v1)) $$ S9
      icases S9 with ⟨%g5, %hin5, F9⟩
      ihave S10 := (Entails.of_eq (outSlotV_neg d L fx hm0)) $$ S10
      icases S10 with ⟨⟨%g6, R6⟩, F10⟩
      ihave S11 := (Entails.of_eq (outSlotV_neg d L fx hm1)) $$ S11
      icases S11 with ⟨⟨%g7, R7⟩, F11⟩
      ihave HX := (Entails.of_eq (xSet_out (xP d L fx) k.val hk)) $$ HX
      icases HX with ⟨X2, X3, HX⟩
      ihave X2 := (Entails.of_eq (xP_pos d L fx v2)) $$ X2
      ihave X2 := (Entails.of_eq (in_congr d L (off_6 L k v2).symm (in_inb L _) (k2_off6_inb L k k2_h3) fx)) $$ X2
      ihave X3 := (Entails.of_eq (xP_pos d L fx v3')) $$ X3
      ihave X3 := (Entails.of_eq (in_congr d L (off_11 L k v3').symm (in_inb L _) (k2_off11_inb L k k2_h6) fx)) $$ X3
      ihave HOut := (Entails.of_eq (oSet_out (oMix d L fx k.val) k.val hk)) $$ HOut
      icases HOut with ⟨Y0, Y1, HOut⟩
      ihave Y0 := (Entails.of_eq ((oMix_ge d L fx (t := k.val) (n := 2 * k.val) (by omega)).trans (oP_pos (F := F) d L v0))) $$ Y0
      icases Y0 with ⟨%f0, Y0⟩
      ihave Y0 := (Entails.of_eq (out_congr d L (off_5 L k v0).symm (out_inb L _) (k2_off5_inb L k k2_h2) f0)) $$ Y0
      ihave Y1 := (Entails.of_eq ((oMix_ge d L fx (t := k.val) (n := 2 * k.val + 1) (by omega)).trans (oP_pos (F := F) d L v1))) $$ Y1
      icases Y1 with ⟨%f1, Y1⟩
      ihave Y1 := (Entails.of_eq (out_congr d L (off_10 L k v1).symm (out_inb L _) (k2_off10_inb L k k2_h5) f1)) $$ Y1
      sl_exec
      sl_for (laneV0 d L g4) $$ [F8_dst R6]
      case region =>
        intro (j : Fin k2_t2_loop.trips) _
        unfold laneV0
        iintro ⟨HA, %g, HB, %hl⟩
        sl_exec
        sl_step
        isplitl [HA]; · iexact HA
        iexists _; isplitl [HB]; · iexact HB
        ipureintro; exact lanes_step d L a4 a6 g4 g j _ _ hl
      · unfold laneV0
        isplitl [F8_dst]; · iexact F8_dst
        iexists _; isplitl [R6]; · iexact R6
        ipureintro; exact lanes_zero d L a4 a6 g4 _
      iintro %_ HI
      unfold laneV0
      icases HI with ⟨H4, %g6', H6, %hl6⟩
      have hl6 : Lanes d L a4 a6 g4 g6' 200 := Eq.mp (congrArg (Lanes d L a4 a6 g4 g6') trips2) hl6
      sl_exec
      sl_for (laneV1 d L g5) $$ [F9_dst R7]
      case region =>
        intro (j : Fin k2_t3_loop.trips) _
        unfold laneV1
        iintro ⟨HA, %g, HB, %hl⟩
        sl_exec
        sl_step
        isplitl [HA]; · iexact HA
        iexists _; isplitl [HB]; · iexact HB
        ipureintro; exact lanes_step' d L a5 a7 g5 g j _ _ hl
      · unfold laneV1
        isplitl [F9_dst]; · iexact F9_dst
        iexists _; isplitl [R7]; · iexact R7
        ipureintro; exact lanes_zero d L a5 a7 g5 _
      iintro %_ HI
      unfold laneV1
      icases HI with ⟨H5, %g7', H7, %hl7⟩
      have hl7 : Lanes d L a5 a7 g5 g7' 200 := Eq.mp (congrArg (Lanes d L a5 a7 g5 g7') trips3) hl7
      sl_exec
      sl_step
      isplitr; · iexact Hmw
      isplitl [HO]
      · iexists _; isplitr
        rotate_left
        · iexact HO
        ipureintro; intro p hp
        rcases Finset.mem_insert.mp hp with rfl | hp
        · exact .inr rfl
        rcases Finset.mem_insert.mp hp with rfl | hp
        · exact .inr rfl
        exact hW' p hp
      isplitl [HX F8_src F9_src]
      · iapply (Entails.of_eq (xSet_in (xP d L fx) k.val hk).symm)
        isplitl [F8_src]; · iapply (Entails.of_eq (xP_pos d L fx v0).symm); iexact F8_src
        isplitl [F9_src]; · iapply (Entails.of_eq (xP_pos d L fx v1).symm); iexact F9_src
        iexact HX
      isplitl [HOut]
      · iapply (Entails.of_eq (congrArg (fun s => bigSep s (oMix d L fx (k.val + 1))) (show oCore k.val = oSet (k.val + 1) by rw [hk0]; decide)))
        iapply (Entails.of_eq (oMix_core d L fx k.val)); iexact HOut
      isplitl [F8]
      · iapply (Entails.of_eq (congrArg (inSlotV d L fx a4 cc2_scratch4.sem) (show 2 * k.val + 2 = 2 * (k.val + 1) by ring)))
        iapply (fl_inV d L fx (off_6 L k v2) (k2_off6_inb L k k2_h3) v2 a4 cc2_scratch4.sem); iexists _, _
        isplitr
        rotate_left
        · iexact F8
        ipureintro; intro y; rfl
      isplitl [F10 H6]
      · iapply (Entails.of_eq (congrArg (outSlotV d L fx a6 cc2_scratch6.sem) (show 2 * k.val + 2 = 2 * (k.val + 1) by ring)))
        iapply (fl_outV d L fx (off_5 L k v0) (k2_off5_inb L k k2_h2) v0 a4 a6 cc2_scratch6.sem f0 g4 g6' hl6 hin4); iexists _
        isplitr
        rotate_left
        · isplitl [F10]; · iexact F10
          iexact H6
        ipureintro; intro y; rfl
      isplitl [F9]
      · iapply (Entails.of_eq (congrArg (inSlotV d L fx a5 cc2_scratch5.sem) (show 2 * k.val + 3 = 2 * (k.val + 1) + 1 by ring)))
        iapply (fl_inV d L fx (off_11 L k v3') (k2_off11_inb L k k2_h6) v3' a5 cc2_scratch5.sem); iexists _, _
        isplitr
        rotate_left
        · iexact F9
        ipureintro; intro y; rfl
      · iapply (Entails.of_eq (congrArg (outSlotV d L fx a7 cc2_scratch7.sem) (show 2 * k.val + 1 + 2 = 2 * (k.val + 1) + 1 by ring)))
        iapply (fl_outV d L fx (off_10 L k v1) (k2_off10_inb L k k2_h5) v1 a5 a7 cc2_scratch7.sem f1 g5 g7' hl7 hin5); iexists _
        isplitr
        rotate_left
        · isplitl [F11]; · iexact F11
          iexact H7
        ipureintro; intro y; rfl
  · unfold invV
    isplitr; · iexact Hmw
    isplitl [HO]
    · iexists W; isplitr
      · ipureintro; exact fun p hp => .inl hp
      · iexact HO
    isplitl [HX]; · iexact HX
    isplitl [HOut]; · iapply (Entails.of_eq (oMix_zero d L fx).symm); iexact HOut
    isplitl [S8]; · iexact S8
    isplitl [H6 Hs10]
    · rw [outSlotV_neg d L fx (by omega)]; isplitl [H6]; · iexists _; iexact H6
      iexact Hs10
    isplitl [S9]; · iexact S9
    rw [outSlotV_neg d L fx (by omega)]; isplitl [H7]; · iexists _; iexact H7
    iexact Hs11
  iintro %acc' HI
  ihave HI := (Entails.of_eq (congrArg (fun t => invV d L O W fx t acc') trips1)) $$ HI
  unfold invV
  icases HI with ⟨-, ⟨%W', %hW', HO⟩, HX, HOut, S8, S10, S9, S11⟩
  have nv16 : ¬ valid L (2 * 8) := by unfold valid; omega
  have nv17 : ¬ valid L (2 * 8 + 1) := by unfold valid; omega
  have hm14 : 2 ≤ 2 * 8 ∧ valid L (2 * 8 - 2) := ⟨by omega, Or.inl (by omega)⟩
  ihave S8 := (Entails.of_eq (inSlotV_neg d L fx nv16)) $$ S8
  icases S8 with ⟨⟨%g4', H4⟩, Hs8⟩
  ihave S9 := (Entails.of_eq (inSlotV_neg d L fx nv17)) $$ S9
  icases S9 with ⟨⟨%g5', H5⟩, Hs9⟩
  ihave S10 := (Entails.of_eq (outSlotV_pos d L fx hm14)) $$ S10
  icases S10 with ⟨%g6', F10, R6⟩
  by_cases hb : big L
  · have k2_h8 : k2_cond8 L = 1#1 := (cond8_iff L).mpr hb
    have hm15 : 2 ≤ 2 * 8 + 1 ∧ valid L (2 * 8 + 1 - 2) := ⟨by omega, Or.inr ⟨by omega, hb⟩⟩
    ihave S11 := (Entails.of_eq (outSlotV_pos d L fx hm15)) $$ S11
    icases S11 with ⟨%g7', F11, R7⟩
    sl_exec
    sl_step
    isplitl [HX]; · iapply (xRange_end d L fx); iexact HX
    isplitl [HOut F10_dst F11_dst]
    · iapply (Entails.of_eq (oRange_end (oQ d L fx)).symm)
      isplitl [F10_dst]; · iapply (Entails.of_eq (oQ_pos d L fx hm14.2).symm); iexact F10_dst
      isplitl [F11_dst]; · iapply (Entails.of_eq (oQ_pos d L fx hm15.2).symm); iexact F11_dst
      iapply (Entails.of_eq (oMix_end d L fx)); iexact HOut
    isplitl [H4]; · iexists _; iexact H4
    isplitl [H5]; · iexists _; iexact H5
    isplitl [R6]; · iexists _; iexact R6
    isplitl [R7]; · iexists _; iexact R7
    isplitl [Hs8]; · iexact Hs8
    isplitl [Hs9]; · iexact Hs9
    isplitl [F10]; · iexact F10
    isplitl [F11]; · iexact F11
    isplitl [HO]
    · iexists _; isplitr
      rotate_left
      · iexact HO
      ipureintro; intro p hp
      rcases Finset.mem_insert.mp hp with rfl | hp
      · exact .inr rfl
      rcases Finset.mem_insert.mp hp with rfl | hp
      · exact .inr rfl
      exact hW' p hp
    iexact HR
  · have k2_h8 : ¬ k2_cond8 L = 1#1 := fun h => hb ((cond8_iff L).mp h)
    have hm15 : ¬ (2 ≤ 2 * 8 + 1 ∧ valid L (2 * 8 + 1 - 2)) := by intro h; have := h.2; unfold valid at this; omega
    ihave S11 := (Entails.of_eq (outSlotV_neg d L fx hm15)) $$ S11
    icases S11 with ⟨⟨%g7', R7⟩, F11⟩
    sl_exec
    sl_step
    isplitl [HX]; · iapply (xRange_end d L fx); iexact HX
    isplitl [HOut F10_dst]
    · iapply (Entails.of_eq (oRange_end (oQ d L fx)).symm)
      isplitl [F10_dst]; · iapply (Entails.of_eq (oQ_pos d L fx hm14.2).symm); iexact F10_dst
      isplitr; · iapply (Entails.of_eq (oQ_neg d L fx (n := 15) (by unfold valid; omega)).symm); iempintro
      iapply (Entails.of_eq (oMix_end d L fx)); iexact HOut
    isplitl [H4]; · iexists _; iexact H4
    isplitl [H5]; · iexists _; iexact H5
    isplitl [R6]; · iexists _; iexact R6
    isplitl [R7]; · iexists _; iexact R7
    isplitl [Hs8]; · iexact Hs8
    isplitl [Hs9]; · iexact Hs9
    isplitl [F10]; · iexact F10
    isplitl [F11]; · iexact F11
    isplitl [HO]
    · iexists _; isplitr
      rotate_left
      · iexact HO
      ipureintro; intro p hp
      rcases Finset.mem_insert.mp hp with rfl | hp
      · exact .inr rfl
      exact hW' p hp
    iexact HR

/-! The subcore's scoped storage: the four staging buffers and the four semaphores of this call, and the rest. -/

abbrev c8 : GSem nD τ sig := (thr d L, SemLoc.dma cc2_scratch4.sem)
abbrev c9 : GSem nD τ sig := (thr d L, SemLoc.dma cc2_scratch5.sem)
abbrev c10 : GSem nD τ sig := (thr d L, SemLoc.dma cc2_scratch6.sem)
abbrev c11 : GSem nD τ sig := (thr d L, SemLoc.dma cc2_scratch7.sem)

omit [FloatOps F] in
theorem ownSems0_V :
    (ownSems0 (thr d L) : sProp 𝕄)
      = iprop(semVal (c8 d L) 0 ∗ semVal (c9 d L) 0 ∗ semVal (c10 d L) 0 ∗ semVal (c11 d L) 0
          ∗ bigSep (((((ownCells (thr d L)).erase (c8 d L)).erase (c9 d L)).erase (c10 d L)).erase (c11 d L)) fun g => semVal g 0) := by
  unfold SparseCore.Cfg.ownSems0
  rw [SparseCore.bigSep_erase' ((mem_ownCells (g := c8 d L)).mpr ⟨rfl, by
      show (SemLoc.dma cc2_scratch4.sem : SemLoc sig).isScoped .scVector = true; decide⟩),
    SparseCore.bigSep_erase' (Finset.mem_erase.mpr ⟨fun e => absurd (Prod.mk.inj e).2 (by decide), (mem_ownCells (g := c9 d L)).mpr ⟨rfl, by
      show (SemLoc.dma cc2_scratch5.sem : SemLoc sig).isScoped .scVector = true; decide⟩⟩),
    SparseCore.bigSep_erase' (Finset.mem_erase.mpr ⟨fun e => absurd (Prod.mk.inj e).2 (by decide), Finset.mem_erase.mpr ⟨fun e => absurd (Prod.mk.inj e).2 (by decide),
      (mem_ownCells (g := c10 d L)).mpr ⟨rfl, by show (SemLoc.dma cc2_scratch6.sem : SemLoc sig).isScoped .scVector = true; decide⟩⟩⟩),
    SparseCore.bigSep_erase' (Finset.mem_erase.mpr ⟨fun e => absurd (Prod.mk.inj e).2 (by decide), Finset.mem_erase.mpr ⟨fun e => absurd (Prod.mk.inj e).2 (by decide),
      Finset.mem_erase.mpr ⟨fun e => absurd (Prod.mk.inj e).2 (by decide),
      (mem_ownCells (g := c11 d L)).mpr ⟨rfl, by show (SemLoc.dma cc2_scratch7.sem : SemLoc sig).isScoped .scVector = true; decide⟩⟩⟩⟩)]

abbrev pV (L : grid2.Coords) : Proc τ := Proc.scVector (cV L) (jV L)

omit [FloatOps F] in
theorem ownBufs_V :
    (ownBufs (thr d L) : sProp 𝕄)
      = iprop((∃ f, (thr d L).loc cc2_scratch0 ↦{fullShare} f) ∗ (∃ f, (thr d L).loc cc2_scratch1 ↦{fullShare} f)
          ∗ (∃ f, (thr d L).loc cc2_scratch2 ↦{fullShare} f) ∗ (∃ f, (thr d L).loc cc2_scratch3 ↦{fullShare} f)
          ∗ bigSep (((((ownRefs (τ := τ) (pV L)).erase ((pV L).devRef cc2_scratch0)).erase ((pV L).devRef cc2_scratch1)).erase
              ((pV L).devRef cc2_scratch2)).erase ((pV L).devRef cc2_scratch3))
              fun b => iprop(∃ f, ((d, b) : Loc nD τ sig) ↦{fullShare} f)) := by
  unfold SparseCore.Cfg.ownBufs
  refine (SparseCore.bigSep_erase' (SparseCore.Cfg.mem_ownRefs_of_owner (p := pV L) (b := (pV L).devRef cc2_scratch0) rfl)).trans ?_
  rw [SparseCore.bigSep_erase' (Finset.mem_erase.mpr ⟨fun e => absurd (Proc.devRef_injective _ e) (show (cc2_scratch1 : Ref sig .scVector) ≠ cc2_scratch0 by decide),
      SparseCore.Cfg.mem_ownRefs_of_owner (p := pV L) (b := (pV L).devRef cc2_scratch1) rfl⟩),
    SparseCore.bigSep_erase' (Finset.mem_erase.mpr ⟨fun e => absurd (Proc.devRef_injective _ e) (show (cc2_scratch2 : Ref sig .scVector) ≠ cc2_scratch1 by decide),
      Finset.mem_erase.mpr ⟨fun e => absurd (Proc.devRef_injective _ e) (show (cc2_scratch2 : Ref sig .scVector) ≠ cc2_scratch0 by decide),
      SparseCore.Cfg.mem_ownRefs_of_owner (p := pV L) (b := (pV L).devRef cc2_scratch2) rfl⟩⟩),
    SparseCore.bigSep_erase' (Finset.mem_erase.mpr ⟨fun e => absurd (Proc.devRef_injective _ e) (show (cc2_scratch3 : Ref sig .scVector) ≠ cc2_scratch2 by decide),
      Finset.mem_erase.mpr ⟨fun e => absurd (Proc.devRef_injective _ e) (show (cc2_scratch3 : Ref sig .scVector) ≠ cc2_scratch1 by decide),
      Finset.mem_erase.mpr ⟨fun e => absurd (Proc.devRef_injective _ e) (show (cc2_scratch3 : Ref sig .scVector) ≠ cc2_scratch0 by decide),
      SparseCore.Cfg.mem_ownRefs_of_owner (p := pV L) (b := (pV L).devRef cc2_scratch3) rfl⟩⟩⟩)]

/-- The rest of the subcore's scoped storage, which the task does not touch. -/
def restR : sProp 𝕄 :=
  iprop((bigSep (((((ownRefs (τ := τ) (pV L)).erase ((pV L).devRef cc2_scratch0)).erase ((pV L).devRef cc2_scratch1)).erase
              ((pV L).devRef cc2_scratch2)).erase ((pV L).devRef cc2_scratch3))
              fun b => iprop(∃ f, ((d, b) : Loc nD τ sig) ↦{fullShare} f))
      ∗ bigSep (((((ownCells (thr d L)).erase (c8 d L)).erase (c9 d L)).erase (c10 d L)).erase (c11 d L)) fun g => semVal g 0)

theorem body_pre (hO : ∀ g, O g none = 0) :
    iprop(levAts (K (F := F)).L (K (F := F)).lev ∗ emp ∗ goRes d L fx ∗ ownBufs (thr d L) ∗ ownSems0 (thr d L) ∗ owes (thr d L) O W)
      ⊢ runPre d L O W fx (restR (F := F) d L) := by
  rw [ownSems0_V, ownBufs_V]
  unfold goRes runPre restR
  iintro ⟨#Hlv, -, ⟨HX, HOut⟩, ⟨H4, H5, H6, H7, Hbufs⟩, ⟨Hs8, Hs9, Hs10, Hs11, Hsems⟩, HO⟩
  ihave Hmw := ((K (F := F)).mayWaits_none (thr := thr d L) hO) $$ Hlv
  isplitr; · iexact Hmw
  isplitl [HO]; · iexact HO
  isplitl [HX]; · iexact HX
  isplitl [HOut]; · iexact HOut
  isplitl [H4]; · iexact H4
  isplitl [H5]; · iexact H5
  isplitl [H6]; · iexact H6
  isplitl [H7]; · iexact H7
  isplitl [Hs8]; · iexact Hs8
  isplitl [Hs9]; · iexact Hs9
  isplitl [Hs10]; · iexact Hs10
  isplitl [Hs11]; · iexact Hs11
  isplitl [Hbufs]; · iexact Hbufs
  iexact Hsems

theorem body_post :
    runPost d L O W fx (restR (F := F) d L)
      ⊢ iprop(tdRes d L fx ∗ ownBufs (thr d L) ∗ ownSems0 (thr d L) ∗ ∃ W', ⌜∀ p ∈ W', p ∈ W ∨ p.2 = none⌝ ∗ owes (thr d L) O W') := by
  rw [ownSems0_V, ownBufs_V]
  unfold tdRes runPost restR
  iintro ⟨HX, HOut, H4, H5, H6, H7, Hs8, Hs9, Hs10, Hs11, HW, Hbufs, Hsems⟩
  isplitl [HX HOut]
  · isplitl [HX]; · iexact HX
    iexact HOut
  isplitl [H4 H5 H6 H7 Hbufs]
  · isplitl [H4]; · iexact H4
    isplitl [H5]; · iexact H5
    isplitl [H6]; · iexact H6
    isplitl [H7]; · iexact H7
    iexact Hbufs
  isplitl [Hs8 Hs9 Hs10 Hs11 Hsems]
  · isplitl [Hs8]; · iexact Hs8
    isplitl [Hs9]; · iexact Hs9
    isplitl [Hs10]; · iexact Hs10
    isplitl [Hs11]; · iexact Hs11
    iexact Hsems
  iexact HW

/-- The task in the launch theorem's shape: from what the call hands the tile and the subcore's scoped storage to
    what the tile hands back and the storage again. -/
theorem tile_body (hF : (K (F := F)).Facts) (hO : ∀ g, O g none = 0) :
    iprop(levAts (K (F := F)).L (K (F := F)).lev ∗ emp ∗ goRes d L fx ∗ scopedBufs (thr d L) ∗ scopedSems0 (thr d L) ∗ owes (thr d L) O W)
      ⊢ wp frame (wpE (defs₀ (F := F)) 𝒱₀ (thr d L) none) Set.univ
          (cc2_sc_group L xtW (Memref.isWhole_whole _) oW (Memref.isWhole_whole _) a4 (Memref.isWhole_whole _) a5 (Memref.isWhole_whole _)
            a6 (Memref.isWhole_whole _) a7 (Memref.isWhole_whole _) cc2_scratch4 cc2_scratch5 cc2_scratch6 cc2_scratch7)
          fun _ => iprop(tdRes d L fx ∗ scopedBufs (thr d L) ∗ scopedSems0 (thr d L)
            ∗ ∃ W', ⌜∀ p ∈ W', p ∈ W ∨ p.2 = none⌝ ∗ owes (thr d L) O W') := by
  rw [(K (F := F)).scopedBufs_V hF d (cV L) (jV L), SparseCore.Cfg.scopedSems0_V (Val := Elt F) d (cV L) (jV L)]
  exact (body_pre d L O W fx hO).trans ((tile_run d L O W fx (restR (F := F) d L)).trans (wp_mono frame _ _ fun _ => body_post d L O W fx))

end Tile

end Cert.Proof.TileB2

end
-- ==== Proof.TileVal3.lean ====
/-
  What the staging buffers of one vector subcore hold while it copies a piece of 3200 consecutive elements of row 3 of
  the transposed argument into the flat result, read index by index. No program and no ownership here: only the contents.

  A transfer lands the piece in row 0 of an 8 × 3200 staging array (`InRow`: position (0, t) of that row holds element
  (0, pos + t) of the transposed argument, `pos` the piece's first column). A loop of 200 trips copies that row, 16 lanes
  per trip, into the first 3200 elements of a flat staging array of 25600: trip `j` reads the 1 × 16 window at columns
  [16 j, 16 j + 16) of row 0 and writes it, flattened, at elements [16 j, 16 j + 16). After `j` trips the first 16 j
  elements of the flat array are the first 16 j elements of the row (`Lanes`); a trip extends the prefix by 16
  (`lanes_step`: an element below 16 j is outside the window written and keeps its value, an element of the window reads
  the lane written there, which is the row's element at the same column). A second transfer writes the first 3200
  elements of the flat array to the piece of the result at the same `pos`; so every element of that piece of the result
  holds the element of row 3 of the transposed argument at its own position (`out_written`): the composite of the three
  index maps t ↦ (0, pos + t) ↦ (0, t) ↦ t ↦ pos + t is the identity on positions of the row.
-/
import proofs.«206869_g37898791420194_cont_8to1_b_558_20_alg».proof.Proof.TileK3Defs
import proofs.«206869_g37898791420194_cont_8to1_b_558_20_alg».proof.Proof.Spec
import Idealize.ShloMosaic.Lib.WritesUnit
import Idealize.ShloMosaic.Lib.ValueLayout

noncomputable section

namespace Cert.Proof.TileVal3

open Cert.Proof.TileK3 Cert.KernelIdeal Cert.KernelIdeal.Gen
open Idealize.ShloMosaic Idealize.ShloMosaic.ValueIdx

variable {F : FTy → Type} [FloatOps F]
variable (d : Dev nD) (L : grid3.Coords)
variable (fx : Buf (Elt F) ((Memref.whole main_v0_scv : Memref sig .scVector .hbm S22x1600000 .f32).view.loc (thr d L)))

abbrev rowRect : Rect S8x3200 := Rect.unit (s := S8x3200) ![0, 0] S1x3200.size inb_S8x3200_S1x3200_0_0

/-- row 0 of the staging array is piece n of the argument row -/
def InRow (a : Memref sig .scVector .vmem S8x3200 .f32) (ga : Buf (Elt F) (a.view.loc (thr d L))) (n : ℕ) : Prop :=
  ∀ y : S1x3200.Idx, a.view.read (Elt F) ga (rowRect.emb y) = (inM L n).view.read (Elt F) fx y

theorem inRow_fetch (a : Memref sig .scVector .vmem S8x3200 .f32) (gold : Buf (Elt F) (a.view.loc (thr d L)))
    (w : S1x3200.Idx → Elt F .f32) (n : ℕ) (hw : ∀ y, w y = (inM L n).view.read (Elt F) fx y) :
    InRow d L fx a (a.view.writes (Elt F) gold [⟨rowRect, w⟩]) n :=
  fun y => (View.read_writes_cons_emb a.view gold rowRect w [] y).trans (hw y)

def Lanes (a : Memref sig .scVector .vmem S8x3200 .f32) (b : Memref sig .scVector .vmem S25600 .f32)
    (ga : Buf (Elt F) (a.view.loc (thr d L))) (gb : Buf (Elt F) (b.view.loc (thr d L))) (j : ℕ) : Prop :=
  ∀ (r : ℕ) (hr : r < 3200), r < 16 * j →
    b.view.read (Elt F) gb (ix1 (⟨r, by omega⟩ : Fin 25600)) = a.view.read (Elt F) ga (ix2 (0 : Fin 8) (⟨r, hr⟩ : Fin 3200))

theorem lanes_zero (a : Memref sig .scVector .vmem S8x3200 .f32) (b : Memref sig .scVector .vmem S25600 .f32)
    (ga : Buf (Elt F) (a.view.loc (thr d L))) (gb : Buf (Elt F) (b.view.loc (thr d L))) : Lanes d L a b ga gb 0 := by
  intro r hr h; omega

/-- The 1 × 16 window at column `c` of the staging array, read at lane `t`, is element `(0, c + t)`. -/
theorem idx_window {off : Fin 2 → ℕ} {c : ℕ} (h : off = ![0, c]) (p : ∀ a', off a' + S1x16.size a' ≤ S8x3200.size a')
    (t : Fin 16) (hr : c + t.val < 3200) :
    (Rect.unit (s := S8x3200) off S1x16.size p).toLoadRect.idx (ix2 (0 : Fin 1) t) = ix2 (0 : Fin 8) (⟨c + t.val, hr⟩ : Fin 3200) := by
  subst h
  funext a'; apply Fin.ext
  rw [LoadRect.idx_apply]
  match a' with
  | ⟨0, _⟩ => show 0 + 1 * 0 = 0; omega
  | ⟨1, _⟩ => show c + 1 * t.val = c + t.val; omega

/-- One trip of a lane-copy loop, the offsets given by their closed forms. -/
theorem lanes_step_core (a : Memref sig .scVector .vmem S8x3200 .f32) (b : Memref sig .scVector .vmem S25600 .f32)
    (ga : Buf (Elt F) (a.view.loc (thr d L))) (gb : Buf (Elt F) (b.view.loc (thr d L)))
    (t : ℕ) {off3 : Fin 2 → ℕ} {off4 : Fin 1 → ℕ} (h3 : off3 = ![0, 16 * t]) (h4 : off4 = ![16 * t])
    (p3 : ∀ a', off3 a' + S1x16.size a' ≤ S8x3200.size a') (p4 : ∀ a', off4 a' + S16.size a' ≤ S25600.size a')
    (h : Lanes d L a b ga gb t) :
    Lanes d L a b ga (b.view.writes (Elt F) gb [⟨Rect.unit (s := S25600) off4 S16.size p4,
      shapeCast S16 (a.view.readAt (Elt F) (Rect.unit (s := S8x3200) off3 S1x16.size p3).toLoadRect ga) shapeCasts_S1x16_S16⟩]) (t + 1) := by
  intro r hr hlt
  by_cases hlo : r < 16 * t
  · refine (View.read_writes_cons_unit_of_not_mem b.view gb p4 _ [] _ h4 (0 : Fin 1) (Or.inl ?_)).trans (h r hr hlo)
    show r < 16 * t
    exact hlo
  · have hx : r - 16 * t < 16 := by omega
    refine (View.read_writes_cons_unit_of_mem b.view gb p4 _ [] _ (ix1 (⟨r - 16 * t, hx⟩ : Fin 16)) h4 ?_).trans ?_
    · intro a'
      match a' with
      | ⟨0, _⟩ => show r = 16 * t + (r - 16 * t); omega
    · rw [shapeCast_1a_a_apply, View.readAt_apply, idx_window h3 p3 ⟨r - 16 * t, hx⟩ (by show 16 * t + (r - 16 * t) < 3200; omega)]
      congr 2
      apply Fin.ext
      show 16 * t + (r - 16 * t) = r
      omega

theorem lanes_step (a : Memref sig .scVector .vmem S8x3200 .f32) (b : Memref sig .scVector .vmem S25600 .f32)
    (ga : Buf (Elt F) (a.view.loc (thr d L))) (gb : Buf (Elt F) (b.view.loc (thr d L)))
    (j : Fin k3_t2_loop.trips) (p3 : ∀ a', (k3_off3 j) a' + S1x16.size a' ≤ S8x3200.size a')
    (p4 : ∀ a', (k3_off4 j) a' + S16.size a' ≤ S25600.size a') (h : Lanes d L a b ga gb j.val) :
    Lanes d L a b ga (b.view.writes (Elt F) gb [⟨Rect.unit (s := S25600) (k3_off4 j) S16.size p4,
      k3_pay1 (a.view.readAt (Elt F) (Rect.unit (s := S8x3200) (k3_off3 j) S1x16.size p3).toLoadRect ga)⟩]) (j.val + 1) :=
  lanes_step_core d L a b ga gb j.val (k3_off3_eq j) (k3_off4_eq j) p3 p4 h

theorem lanes_step' (a : Memref sig .scVector .vmem S8x3200 .f32) (b : Memref sig .scVector .vmem S25600 .f32)
    (ga : Buf (Elt F) (a.view.loc (thr d L))) (gb : Buf (Elt F) (b.view.loc (thr d L)))
    (j : Fin k3_t3_loop.trips) (p3 : ∀ a', (k3_off8 j) a' + S1x16.size a' ≤ S8x3200.size a')
    (p4 : ∀ a', (k3_off9 j) a' + S16.size a' ≤ S25600.size a') (h : Lanes d L a b ga gb j.val) :
    Lanes d L a b ga (b.view.writes (Elt F) gb [⟨Rect.unit (s := S25600) (k3_off9 j) S16.size p4,
      k3_pay2 (a.view.readAt (Elt F) (Rect.unit (s := S8x3200) (k3_off8 j) S1x16.size p3).toLoadRect ga)⟩]) (j.val + 1) :=
  lanes_step_core d L a b ga gb j.val (k3_off8_eq j) (k3_off9_eq j) p3 p4 h

/-- Position `y` of the write-out window of the flat staging array is its element `y 0`. -/
theorem stg_emb (y : S3200.Idx) (hy : (y 0).val < 25600) :
    (Rect.unit (s := S25600) ![0] S3200.size inb_S25600_S3200_0).emb y = ix1 (⟨(y 0).val, hy⟩ : Fin 25600) := by
  funext a'; apply Fin.ext
  match a' with
  | ⟨0, _⟩ => show 0 + 1 * (y 0).val = (y 0).val; omega

/-- Position `(0, t)` of row 0 of the staging array is its element `(0, t)`. -/
theorem row_emb (t : Fin 3200) : rowRect.emb (ix2 (0 : Fin 1) t) = ix2 (0 : Fin 8) t := by
  funext a'; apply Fin.ext
  match a' with
  | ⟨0, _⟩ => show 0 + 1 * 0 = 0; omega
  | ⟨1, _⟩ => show 0 + 1 * t.val = t.val; omega

/-- Position `(0, t)` of piece `n` of the argument row is element `(0, pos + t)` of the transposed argument;
    position `y` of piece `n` of the result is element `pos + y 0` of the result. -/
theorem in_emb (n : ℕ) (t : Fin 3200) (h : pos L n + t.val < 1600000) :
    (inM L n).view.emb (ix2 (0 : Fin 1) t) = ix2 (3 : Fin 22) (⟨pos L n + t.val, h⟩ : Fin 1600000) := by
  funext a'; apply Fin.ext
  match a' with
  | ⟨0, _⟩ => show 3 + 1 * 0 = 3; omega
  | ⟨1, _⟩ => show pos L n + 1 * t.val = pos L n + t.val; omega

theorem out_emb (n : ℕ) (y : S3200.Idx) (h : pos L n + (y 0).val < 1600000) :
    (outM L n).view.emb y = ix1 (⟨pos L n + (y 0).val, h⟩ : Fin 1600000) := by
  funext a'; apply Fin.ext
  match a' with
  | ⟨0, _⟩ => show pos L n + 1 * (y 0).val = pos L n + (y 0).val; omega

/-- Both lane-copy loops run 200 trips: 200 · 16 = 3200, the whole row. -/
theorem trips2 : k3_t2_loop.trips = 200 := by decide
theorem trips3 : k3_t3_loop.trips = 200 := by decide

/-- After all its trips a lane-copy loop has copied the whole row. -/
theorem lanes_all (a : Memref sig .scVector .vmem S8x3200 .f32) (b : Memref sig .scVector .vmem S25600 .f32)
    (ga : Buf (Elt F) (a.view.loc (thr d L))) (gb : Buf (Elt F) (b.view.loc (thr d L)))
    (h : Lanes d L a b ga gb k3_t2_loop.trips) : Lanes d L a b ga gb 200 := trips2 ▸ h
theorem lanes_all' (a : Memref sig .scVector .vmem S8x3200 .f32) (b : Memref sig .scVector .vmem S25600 .f32)
    (ga : Buf (Elt F) (a.view.loc (thr d L))) (gb : Buf (Elt F) (b.view.loc (thr d L)))
    (h : Lanes d L a b ga gb k3_t3_loop.trips) : Lanes d L a b ga gb 200 := trips3 ▸ h

/-- The write-out of a piece: the first 3200 elements of the flat staging array, which the 200 lane copies filled from
    row 0 of the staging array, which the fetch filled from piece `n` of row 3 of the transposed argument, land at
    piece `n` of the result, at the same positions of the row. -/
theorem out_written (a : Memref sig .scVector .vmem S8x3200 .f32) (b : Memref sig .scVector .vmem S25600 .f32) (n : ℕ)
    (ga : Buf (Elt F) (a.view.loc (thr d L))) (gb : Buf (Elt F) (b.view.loc (thr d L)))
    (f0 : Buf (Elt F) ((outM L n).view.loc (thr d L))) (w : S3200.Idx → Elt F .f32)
    (hw : ∀ y, w y = (stg b).view.read (Elt F) gb y) (hl : Lanes d L a b ga gb 200) (hr : InRow d L fx a ga n) (hv : valid L n) :
    ∀ i ∈ (outM L n).view.set, ((outM L n).view.writes (Elt F) f0 [⟨Rect.whole _, w⟩]) i = Cert.Spec.row 3 fx i := by
  intro i hi
  obtain ⟨y, -, rfl⟩ := Finset.mem_map.mp hi
  have hy : (y 0).val < 3200 := (y 0).isLt
  have hp : pos L n + (y 0).val < 1600000 := by unfold pos; omega
  have e1 : (outM L n).view.writes (Elt F) f0 [⟨Rect.whole _, w⟩] ((outM L n).view.emb y) = w y := by
    have h := View.read_writes_cons_emb (outM L n).view f0 (Rect.whole _) w [] y
    rw [Rect.emb_whole_apply] at h
    exact (cast_eq _ _).symm.trans ((View.read_apply _ _).symm.trans h)
  have e2 : (stg b).view.read (Elt F) gb y = b.view.read (Elt F) gb (ix1 (⟨(y 0).val, by omega⟩ : Fin 25600)) :=
    congrArg (b.view.read (Elt F) gb) (stg_emb y (by omega))
  have e3 : a.view.read (Elt F) ga (ix2 (0 : Fin 8) (⟨(y 0).val, hy⟩ : Fin 3200))
      = (inM L n).view.read (Elt F) fx (ix2 (0 : Fin 1) (⟨(y 0).val, hy⟩ : Fin 3200)) :=
    (congrArg (a.view.read (Elt F) ga) (row_emb ⟨(y 0).val, hy⟩).symm).trans (hr _)
  have e4 : (inM L n).view.read (Elt F) fx (ix2 (0 : Fin 1) (⟨(y 0).val, hy⟩ : Fin 3200))
      = fx (ix2 (3 : Fin 22) (⟨pos L n + (y 0).val, hp⟩ : Fin 1600000)) :=
    ((View.read_apply _ _).trans (cast_eq _ _)).trans (congrArg fx (in_emb L n ⟨(y 0).val, hy⟩ hp))
  have e5 : Cert.Spec.row 3 fx ((outM L n).view.emb y) = fx (ix2 (3 : Fin 22) (⟨pos L n + (y 0).val, hp⟩ : Fin 1600000)) :=
    (congrArg (Cert.Spec.row 3 fx) (out_emb L n y hp)).trans (Cert.Spec.row_apply 3 fx _)
  exact e1.trans ((hw y).trans (e2.trans ((hl _ hy (by omega)).trans (e3.trans (e4.trans e5.symm)))))

end Cert.Proof.TileVal3

end
-- ==== Proof.TileK3.lean ====
/-
  One vector subcore's task of copy kernel 3 (counting from 0), run symbolically: the two fetch slots and two write-out slots
  between trips of the main loop (what each transfer in flight will hand back, and what the staging buffers hold), the
  invariant of the main loop and of the two lane-copy loops, and the task's run — from the tile's pieces of row 3 of
  the transposed argument and of the result to the same pieces with the result holding the row's elements.
-/
import proofs.«206869_g37898791420194_cont_8to1_b_558_20_alg».proof.Proof.TileK3Defs
import proofs.«206869_g37898791420194_cont_8to1_b_558_20_alg».proof.Proof.TileVal3
noncomputable section

namespace Cert.Proof.TileK3

open Cert.KernelIdeal Cert.KernelIdeal.Gen Cert.Proof.TileVal3
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 22) (Elt F) ℕ UU ℕ
local notation "xtW" => (Memref.whole Cert.KernelIdeal.main_v0_scv : Memref Cert.KernelIdeal.sig Kind.scVector Space.hbm Cert.KernelIdeal.S22x1600000 EltTy.f32)
local notation "oW" => (Memref.whole Cert.KernelIdeal.main_v4_scv : Memref Cert.KernelIdeal.sig Kind.scVector Space.hbm Cert.KernelIdeal.S1600000 EltTy.f32)
local notation "a4" => (Memref.whole Cert.KernelIdeal.cc3_scratch0 : Memref Cert.KernelIdeal.sig Kind.scVector Space.vmem Cert.KernelIdeal.S8x3200 EltTy.f32)
local notation "a5" => (Memref.whole Cert.KernelIdeal.cc3_scratch1 : Memref Cert.KernelIdeal.sig Kind.scVector Space.vmem Cert.KernelIdeal.S8x3200 EltTy.f32)
local notation "a6" => (Memref.whole Cert.KernelIdeal.cc3_scratch2 : Memref Cert.KernelIdeal.sig Kind.scVector Space.vmem Cert.KernelIdeal.S25600 EltTy.f32)
local notation "a7" => (Memref.whole Cert.KernelIdeal.cc3_scratch3 : Memref Cert.KernelIdeal.sig Kind.scVector Space.vmem Cert.KernelIdeal.S25600 EltTy.f32)

variable [FloatOps F]

section Tile

variable (d : Dev nD) (L : grid3.Coords)
variable (O : CellTallies nD τ sig (HIx 22)) (W : Waits sig (HIx 22))
variable (fx : Buf (Elt F) ((xtW).view.loc (thr d L)))

/-- Piece `n` of the result at its final contents. -/
abbrev oqPiece (n : ℕ) : sProp 𝕄 := (outM L n).view.loc (thr d L) ↦[(outM L n).view.set]{fullShare} (Cert.Spec.row 3 fx)
theorem oQ_pos {n : ℕ} (v : valid L n) : oQ d L fx n = oqPiece d L fx n := if_pos v
theorem oQ_neg {n : ℕ} (v : ¬ valid L n) : oQ d L fx n = iprop(emp) := if_neg v

/-- A fetch slot, remembering that the staging row it will hand back holds the piece. -/
def inSlotV (a : Memref sig .scVector .vmem S8x3200 .f32) (sm : DmaSem sig) (n : ℕ) : sProp 𝕄 :=
  if valid L n then
    iprop(∃ g, ⌜InRow d L fx a g n⌝ ∗ Transfers.Flight countersEmb (thr d L) (SemLoc.dma sm) (default : HIx 22) NN
      iprop((a.view.loc (thr d L) ↦{fullShare} g) ∗ xtPiece d L fx n))
  else iprop((∃ g, a.view.loc (thr d L) ↦{fullShare} g) ∗ semVal (thr d L, SemLoc.dma sm) 0)

/-- A write-out slot: the piece in flight will come back holding the row's elements. -/
def outSlotV (a : Memref sig .scVector .vmem S25600 .f32) (sm : DmaSem sig) (m : ℕ) : sProp 𝕄 :=
  if 2 ≤ m ∧ valid L (m - 2) then
    iprop(∃ g, Transfers.Flight countersEmb (thr d L) (SemLoc.dma sm) (default : HIx 22) NN
        iprop(oqPiece d L fx (m - 2) ∗ ((stg a).view.loc (thr d L) ↦[(stg a).view.set]{fullShare} g))
      ∗ (a.view.loc (thr d L) ↦[Finset.univ \ (stg a).view.set]{fullShare} g))
  else iprop((∃ g, a.view.loc (thr d L) ↦{fullShare} g) ∗ semVal (thr d L, SemLoc.dma sm) 0)

theorem inSlotV_pos {a : Memref sig .scVector .vmem S8x3200 .f32} {sm : DmaSem sig} {n : ℕ} (v : valid L n) :
    inSlotV d L fx a sm n = iprop(∃ g, ⌜InRow d L fx a g n⌝ ∗ Transfers.Flight countersEmb (thr d L) (SemLoc.dma sm) (default : HIx 22) NN
      iprop((a.view.loc (thr d L) ↦{fullShare} g) ∗ xtPiece d L fx n)) := by unfold inSlotV; rw [if_pos v]
theorem inSlotV_neg {a : Memref sig .scVector .vmem S8x3200 .f32} {sm : DmaSem sig} {n : ℕ} (v : ¬ valid L n) :
    inSlotV d L fx a sm n = iprop((∃ g, a.view.loc (thr d L) ↦{fullShare} g) ∗ semVal (thr d L, SemLoc.dma sm) 0) := by
  unfold inSlotV; rw [if_neg v]
theorem outSlotV_pos {a : Memref sig .scVector .vmem S25600 .f32} {sm : DmaSem sig} {m : ℕ} (h : 2 ≤ m ∧ valid L (m - 2)) :
    outSlotV d L fx a sm m = iprop(∃ g, Transfers.Flight countersEmb (thr d L) (SemLoc.dma sm) (default : HIx 22) NN
        iprop(oqPiece d L fx (m - 2) ∗ ((stg a).view.loc (thr d L) ↦[(stg a).view.set]{fullShare} g))
      ∗ (a.view.loc (thr d L) ↦[Finset.univ \ (stg a).view.set]{fullShare} g)) := by unfold outSlotV; rw [if_pos h]
theorem outSlotV_neg {a : Memref sig .scVector .vmem S25600 .f32} {sm : DmaSem sig} {m : ℕ} (h : ¬ (2 ≤ m ∧ valid L (m - 2))) :
    outSlotV d L fx a sm m = iprop((∃ g, a.view.loc (thr d L) ↦{fullShare} g) ∗ semVal (thr d L, SemLoc.dma sm) 0) := by
  unfold outSlotV; rw [if_neg h]

/-- A fetch just issued: the staging row will hold what the transfer reads, which is the piece. -/
theorem fl_inV {off : Fin 2 → ℕ} {n : ℕ} (h : off = ![3, pos L n]) (p : ∀ a, off a + S1x3200.size a ≤ S22x1600000.size a) (v : valid L n)
    (a : Memref sig .scVector .vmem S8x3200 .f32) (sm : DmaSem sig) :
    (iprop(∃ (gold : Buf (Elt F) (a.view.loc (thr d L))) (w : S1x3200.Idx → Elt F .f32),
        ⌜∀ y, w y = ((xtW).slice (Rect.unit (s := S22x1600000) off S1x3200.size p) (fun _ => rfl)).view.read (Elt F) fx y⌝
        ∗ Transfers.Flight countersEmb (thr d L) (SemLoc.dma sm) (default : HIx 22) NN
          iprop((a.view.loc (thr d L) ↦{fullShare} a.view.writes (Elt F) gold [⟨rowRect, w⟩])
            ∗ (((xtW).slice (Rect.unit (s := S22x1600000) off S1x3200.size p) (fun _ => rfl)).view.loc (thr d L)
                ↦[((xtW).slice (Rect.unit (s := S22x1600000) off S1x3200.size p) (fun _ => rfl)).view.set]{fullShare} fx))) : sProp 𝕄)
      ⊢ inSlotV d L fx a sm n := by
  subst h
  rw [inSlotV_pos d L fx v]
  iintro ⟨%gold, %w, %hw, H⟩
  iexists _
  isplitr
  · ipureintro; exact inRow_fetch d L fx a gold w n hw
  · iexact H

set_option maxHeartbeats 4000000 in
/-- A write-out just issued from a flat staging buffer whose first 3200 elements are the staging row, itself piece
    `n` of the argument row: the piece of the result will hold the row's elements. -/
theorem fl_outV {off : Fin 1 → ℕ} {n : ℕ} (h : off = ![pos L n]) (p : ∀ a, off a + S3200.size a ≤ S1600000.size a) (v : valid L n)
    (ar : Memref sig .scVector .vmem S8x3200 .f32) (a : Memref sig .scVector .vmem S25600 .f32) (sm : DmaSem sig)
    (f0 : Buf (Elt F) ((oW).view.loc (thr d L))) (ga : Buf (Elt F) (ar.view.loc (thr d L))) (gb : Buf (Elt F) (a.view.loc (thr d L)))
    (hl : Lanes d L ar a ga gb 200) (hr : InRow d L fx ar ga n) :
    (iprop(∃ (w : S3200.Idx → Elt F .f32),
        ⌜∀ y, w y = (stg a).view.read (Elt F) gb y⌝
        ∗ Transfers.Flight countersEmb (thr d L) (SemLoc.dma sm) (default : HIx 22) NN
          iprop((((oW).slice (Rect.unit (s := S1600000) off S3200.size p) (fun _ => rfl)).view.loc (thr d L)
                ↦[((oW).slice (Rect.unit (s := S1600000) off S3200.size p) (fun _ => rfl)).view.set]{fullShare}
                  (((oW).slice (Rect.unit (s := S1600000) off S3200.size p) (fun _ => rfl)).view.writes (Elt F) f0 [⟨Rect.whole _, w⟩]))
            ∗ ((stg a).view.loc (thr d L) ↦[(stg a).view.set]{fullShare} gb))
        ∗ (a.view.loc (thr d L) ↦[Finset.univ \ (stg a).view.set]{fullShare} gb)) : sProp 𝕄)
      ⊢ outSlotV d L fx a sm (n + 2) := by
  subst h
  rw [outSlotV_pos d L fx (m := n + 2) ⟨by omega, by simpa using v⟩]
  iintro ⟨%w, %hw, H, R⟩
  have hD : (iprop(((outM L n).view.loc (thr d L) ↦[(outM L n).view.set]{fullShare} ((outM L n).view.writes (Elt F) f0 [⟨Rect.whole _, w⟩]))
          ∗ ((stg a).view.loc (thr d L) ↦[(stg a).view.set]{fullShare} gb)) : sProp 𝕄)
      ⊢ iprop(oqPiece d L fx (n + 2 - 2) ∗ ((stg a).view.loc (thr d L) ↦[(stg a).view.set]{fullShare} gb)) := by
    rw [Nat.add_sub_cancel]
    have e : (((outM L n).view.loc (thr d L) ↦[(outM L n).view.set]{fullShare} ((outM L n).view.writes (Elt F) f0 [⟨Rect.whole _, w⟩])) : sProp 𝕄)
        = oqPiece d L fx n := pointsTo_congr (out_written d L fx ar a n ga gb f0 w hw hl hr v)
    iintro ⟨H1, H2⟩
    isplitl [H1]
    · iapply (Entails.of_eq e); iexact H1
    · iexact H2
  iexists gb
  isplitl [H]
  · iapply (Transfers.Flight_mono countersEmb (thr d L) hD); iexact H
  · iexact R

/-- The result pieces outside the slots before trip `t`: those already written hold the row, the others some contents. -/
def oMix (t n : ℕ) : sProp 𝕄 := if n + 2 < 2 * t then oQ d L fx n else oP (F := F) d L n
theorem oMix_lt {t n : ℕ} (h : n + 2 < 2 * t) : oMix d L fx t n = oQ d L fx n := if_pos h
theorem oMix_ge {t n : ℕ} (h : ¬ n + 2 < 2 * t) : oMix d L fx t n = oP (F := F) d L n := if_neg h
theorem oMix_core (k : ℕ) : bigSep (oCore k) (oMix d L fx k) = bigSep (oCore k) (oMix d L fx (k + 1)) :=
  bigSep_congr fun n hn => by
    have hn' : n + 2 ≠ 2 * k ∧ n + 2 ≠ 2 * k + 1 ∧ n ≠ 2 * k ∧ n ≠ 2 * k + 1 := by
      simp only [oCore, Finset.mem_filter, Finset.mem_range] at hn; exact hn.2
    by_cases h : n + 2 < 2 * k
    · rw [oMix_lt d L fx h, oMix_lt d L fx (by omega)]
    · rw [oMix_ge d L fx h, oMix_ge d L fx (by omega)]
theorem oMix_zero : bigSep (oSet 0) (oMix d L fx 0) = bigSep (Finset.range 18) (oP (F := F) d L) := by
  rw [oSet_zero]; exact bigSep_congr fun n _ => oMix_ge d L fx (by omega)
theorem oMix_end : bigSep (oSet 8) (oMix d L fx 8) = bigSep (oSet 8) (oQ d L fx) :=
  bigSep_congr fun n hn => by
    have hn' : n < 18 ∧ n + 2 ≠ 16 ∧ n + 2 ≠ 17 := by simpa only [oSet, Finset.mem_filter, Finset.mem_range] using hn
    by_cases h : n + 2 < 2 * 8
    · exact oMix_lt d L fx h
    · rw [oMix_ge d L fx h, oP_neg (F := F) d L (by unfold valid; omega), oQ_neg d L fx (by unfold valid; omega)]

/-- The lane-copy loops: before trip `j` the first 16·j elements of the flat staging buffer are the staging row's. -/
def laneV0 (g4 : Buf (Elt F) ((a4).view.loc (thr d L))) (j : ℕ) (_ : PUnit) : sProp 𝕄 :=
  iprop(((a4).view.loc (thr d L) ↦{fullShare} g4) ∗ (∃ g, ((a6).view.loc (thr d L) ↦{fullShare} g) ∗ ⌜Lanes d L a4 a6 g4 g j⌝))
def laneV1 (g5 : Buf (Elt F) ((a5).view.loc (thr d L))) (j : ℕ) (_ : PUnit) : sProp 𝕄 :=
  iprop(((a5).view.loc (thr d L) ↦{fullShare} g5) ∗ (∃ g, ((a7).view.loc (thr d L) ↦{fullShare} g) ∗ ⌜Lanes d L a5 a7 g5 g j⌝))

def invV (t : ℕ) (_ : PUnit) : sProp 𝕄 :=
  iprop(Transfers.MayWaits (thr d L) (none : HIx 22) O
    ∗ (∃ W', ⌜∀ p ∈ W', p ∈ W ∨ p.2 = none⌝ ∗ owes (thr d L) O W')
    ∗ bigSep (xSet t) (xP d L fx) ∗ bigSep (oSet t) (oMix d L fx t)
    ∗ inSlotV d L fx a4 cc3_scratch4.sem (2 * t) ∗ outSlotV d L fx a6 cc3_scratch6.sem (2 * t)
    ∗ inSlotV d L fx a5 cc3_scratch5.sem (2 * t + 1) ∗ outSlotV d L fx a7 cc3_scratch7.sem (2 * t + 1))

/-- After the last trip nothing of the argument row is in a slot: the tile holds all its pieces. -/
theorem xRange_end : bigSep (xSet 8) (xP d L fx) ⊢ bigSep (Finset.range 18) (xP d L fx) := by
  rw [two_out (s := Finset.range 18) (a := 16) (b := 17) (by decide) (by decide) (by decide),
    show ((Finset.range 18).erase 16).erase 17 = xSet 8 by decide]
  iintro H
  isplitr; · iapply (Entails.of_eq (xP_neg d L fx (n := 16) (by unfold valid; omega)).symm); iempintro
  isplitr; · iapply (Entails.of_eq (xP_neg d L fx (n := 17) (by unfold valid; omega)).symm); iempintro
  iexact H
omit [FloatOps F] in
theorem oRange_end (Φ : ℕ → sProp 𝕄) : bigSep (Finset.range 18) Φ = iprop(Φ 14 ∗ Φ 15 ∗ bigSep (oSet 8) Φ) := by
  rw [two_out (s := Finset.range 18) (a := 14) (b := 15) (by decide) (by decide) (by decide),
    show ((Finset.range 18).erase 14).erase 15 = oSet 8 by decide]

/-- What the run starts from and ends with, beside an untouched rest `R`. -/
def runPre (R : sProp 𝕄) : sProp 𝕄 :=
    iprop(Transfers.MayWaits (thr d L) (none : HIx 22) O ∗ owes (thr d L) O W
        ∗ bigSep (Finset.range 18) (xP d L fx) ∗ bigSep (Finset.range 18) (oP (F := F) d L)
        ∗ (∃ g, (a4).view.loc (thr d L) ↦{fullShare} g) ∗ (∃ g, (a5).view.loc (thr d L) ↦{fullShare} g)
        ∗ (∃ g, (a6).view.loc (thr d L) ↦{fullShare} g) ∗ (∃ g, (a7).view.loc (thr d L) ↦{fullShare} g)
        ∗ semVal (thr d L, SemLoc.dma cc3_scratch4.sem) 0 ∗ semVal (thr d L, SemLoc.dma cc3_scratch5.sem) 0
        ∗ semVal (thr d L, SemLoc.dma cc3_scratch6.sem) 0 ∗ semVal (thr d L, SemLoc.dma cc3_scratch7.sem) 0 ∗ R)
def runPost (R : sProp 𝕄) : sProp 𝕄 :=
    iprop(bigSep (Finset.range 18) (xP d L fx) ∗ bigSep (Finset.range 18) (oQ d L fx)
            ∗ (∃ g, (a4).view.loc (thr d L) ↦{fullShare} g) ∗ (∃ g, (a5).view.loc (thr d L) ↦{fullShare} g)
            ∗ (∃ g, (a6).view.loc (thr d L) ↦{fullShare} g) ∗ (∃ g, (a7).view.loc (thr d L) ↦{fullShare} g)
            ∗ semVal (thr d L, SemLoc.dma cc3_scratch4.sem) 0 ∗ semVal (thr d L, SemLoc.dma cc3_scratch5.sem) 0
            ∗ semVal (thr d L, SemLoc.dma cc3_scratch6.sem) 0 ∗ semVal (thr d L, SemLoc.dma cc3_scratch7.sem) 0
            ∗ (∃ W', ⌜∀ p ∈ W', p ∈ W ∨ p.2 = none⌝ ∗ owes (thr d L) O W') ∗ R)

set_option maxHeartbeats 16000000 in
/-- The task's run: from its pieces of the argument row and of the result, the four staging buffers and the four
    semaphores at zero, to the same with every piece of the result holding the row's elements. -/
theorem tile_run (R : sProp 𝕄) :
    runPre d L O W fx R
      ⊢ wp frame (wpE (defs₀ (F := F)) 𝒱₀ (thr d L) none) Set.univ
          (cc3_sc_group L xtW (Memref.isWhole_whole _) oW (Memref.isWhole_whole _) a4 (Memref.isWhole_whole _) a5 (Memref.isWhole_whole _)
            a6 (Memref.isWhole_whole _) a7 (Memref.isWhole_whole _) cc3_scratch4 cc3_scratch5 cc3_scratch6 cc3_scratch7)
          fun _ => runPost d L O W fx R := by
  unfold runPre runPost
  have v0 : valid L 0 := Or.inl (by omega)
  have v1 : valid L 1 := Or.inl (by omega)
  have k3_h7 : k3_cond7 L = 1#1 := cond7_iff L
  iintro ⟨#Hmw, HO, HX, HOut, ⟨%g4, H4⟩, ⟨%g5, H5⟩, ⟨%g6, H6⟩, ⟨%g7, H7⟩, Hs8, Hs9, Hs10, Hs11, HR⟩
  ihave HX := (Entails.of_eq (xRange_split d L fx v0 v1)) $$ HX
  icases HX with ⟨X0, X1, HX⟩
  ihave X0 := (Entails.of_eq (in_congr d L (off_in0 L v0).symm (in_inb L _) (k3_off1_inb L 0) fx)) $$ X0
  ihave X1 := (Entails.of_eq (in_congr d L (off_in1 L v1).symm (in_inb L _) (k3_off1_inb L 1) fx)) $$ X1
  sl_unfold [cc3_sc_group]
  sl_exec
  ihave S8 := (fl_inV d L fx (off_in0 L v0) (k3_off1_inb L 0) v0 a4 cc3_scratch4.sem) $$ [Hs8]
  · iexists _, _
    isplitr
    rotate_left
    · iexact Hs8
    ipureintro; intro y; rfl
  ihave S9 := (fl_inV d L fx (off_in1 L v1) (k3_off1_inb L 1) v1 a5 cc3_scratch5.sem) $$ [Hs9]
  · iexists _, _
    isplitr
    rotate_left
    · iexact Hs9
    ipureintro; intro y; rfl
  sl_for (invV d L O W fx) $$ [HO HX HOut S8 S9 H6 H7 Hs10 Hs11]
  case region =>
    intro (k : Fin k3_t1_loop.trips) acc
    have hk : k.val < 8 := Nat.lt_of_lt_of_eq k.isLt trips1
    unfold invV
    iintro ⟨#Hmw, ⟨%W', %hW', HO⟩, HX, HOut, S8, S10, S9, S11⟩
    by_cases hk1 : 1 ≤ k.val
    · by_cases v3 : valid L (2 * k.val + 3)
      · -- the generic trip: both drains, both pieces worked, both next fetches issued
        have hk6 : k.val ≤ 6 := by unfold valid at v3; omega
        have k3_h1 : k3_cond1 k = 1#1 := (cond1_iff k).mpr (by omega)
        have k3_h2 : k3_cond2 L k = 1#1 := cond2_iff L k
        have k3_h3 : k3_cond3 L k = 1#1 := (cond3_iff L k).mpr (by omega)
        have k3_h4 : k3_cond4 k = 1#1 := (cond4_iff k).mpr (by omega)
        have k3_h5 : k3_cond5 L k = 1#1 := (cond5_iff L k).mpr (by first | (unfold valid big at *; omega) | (unfold big at *; omega) | omega)
        have k3_h6 : k3_cond6 L k = 1#1 := (cond6_iff L k).mpr (by first | (unfold valid big at *; omega) | (unfold big at *; omega) | omega)
        have v0 : valid L (2 * k.val) := by unfold valid big at *; omega
        have v1 : valid L (2 * k.val + 1) := by unfold valid big at *; omega
        have v2 : valid L (2 * k.val + 2) := by unfold valid big at *; omega
        have v3' : valid L (2 * k.val + 3) := by unfold valid big at *; omega
        have hm0 : 2 ≤ 2 * k.val ∧ valid L (2 * k.val - 2) := ⟨by omega, by unfold valid big at *; omega⟩
        have hm1 : 2 ≤ 2 * k.val + 1 ∧ valid L (2 * k.val + 1 - 2) := ⟨by omega, by unfold valid big at *; omega⟩
        ihave S8 := (Entails.of_eq (inSlotV_pos d L fx v0)) $$ S8
        icases S8 with ⟨%g4, %hin4, F8⟩
        ihave S9 := (Entails.of_eq (inSlotV_pos d L fx v1)) $$ S9
        icases S9 with ⟨%g5, %hin5, F9⟩
        ihave S10 := (Entails.of_eq (outSlotV_pos d L fx hm0)) $$ S10
        icases S10 with ⟨%g6, F10, R6⟩
        ihave S11 := (Entails.of_eq (outSlotV_pos d L fx hm1)) $$ S11
        icases S11 with ⟨%g7, F11, R7⟩
        ihave HX := (Entails.of_eq (xSet_out (xP d L fx) k.val hk)) $$ HX
        icases HX with ⟨X2, X3, HX⟩
        ihave X2 := (Entails.of_eq (xP_pos d L fx v2)) $$ X2
        ihave X2 := (Entails.of_eq (in_congr d L (off_6 L k v2).symm (in_inb L _) (k3_off6_inb L k k3_h3) fx)) $$ X2
        ihave X3 := (Entails.of_eq (xP_pos d L fx v3')) $$ X3
        ihave X3 := (Entails.of_eq (in_congr d L (off_11 L k v3').symm (in_inb L _) (k3_off11_inb L k k3_h6) fx)) $$ X3
        ihave HOut := (Entails.of_eq (oSet_out (oMix d L fx k.val) k.val hk)) $$ HOut
        icases HOut with ⟨Y0, Y1, HOut⟩
        ihave Y0 := (Entails.of_eq ((oMix_ge d L fx (t := k.val) (n := 2 * k.val) (by omega)).trans (oP_pos (F := F) d L v0))) $$ Y0
        icases Y0 with ⟨%f0, Y0⟩
        ihave Y0 := (Entails.of_eq (out_congr d L (off_5 L k v0).symm (out_inb L _) (k3_off5_inb L k k3_h2) f0)) $$ Y0
        ihave Y1 := (Entails.of_eq ((oMix_ge d L fx (t := k.val) (n := 2 * k.val + 1) (by omega)).trans (oP_pos (F := F) d L v1))) $$ Y1
        icases Y1 with ⟨%f1, Y1⟩
        ihave Y1 := (Entails.of_eq (out_congr d L (off_10 L k v1).symm (out_inb L _) (k3_off10_inb L k k3_h5) f1)) $$ Y1
        sl_exec
        sl_for (laneV0 d L g4) $$ [F8_dst R6]
        case region =>
          intro (j : Fin k3_t2_loop.trips) _
          unfold laneV0
          iintro ⟨HA, %g, HB, %hl⟩
          sl_exec
          sl_step
          isplitl [HA]; · iexact HA
          iexists _; isplitl [HB]; · iexact HB
          ipureintro; exact lanes_step d L a4 a6 g4 g j _ _ hl
        · unfold laneV0
          isplitl [F8_dst]; · iexact F8_dst
          iexists _; isplitl [R6]; · iexact R6
          ipureintro; exact lanes_zero d L a4 a6 g4 _
        iintro %_ HI
        unfold laneV0
        icases HI with ⟨H4, %g6', H6, %hl6⟩
        have hl6 : Lanes d L a4 a6 g4 g6' 200 := Eq.mp (congrArg (Lanes d L a4 a6 g4 g6') trips2) hl6
        sl_exec
        sl_for (laneV1 d L g5) $$ [F9_dst R7]
        case region =>
          intro (j : Fin k3_t3_loop.trips) _
          unfold laneV1
          iintro ⟨HA, %g, HB, %hl⟩
          sl_exec
          sl_step
          isplitl [HA]; · iexact HA
          iexists _; isplitl [HB]; · iexact HB
          ipureintro; exact lanes_step' d L a5 a7 g5 g j _ _ hl
        · unfold laneV1
          isplitl [F9_dst]; · iexact F9_dst
          iexists _; isplitl [R7]; · iexact R7
          ipureintro; exact lanes_zero d L a5 a7 g5 _
        iintro %_ HI
        unfold laneV1
        icases HI with ⟨H5, %g7', H7, %hl7⟩
        have hl7 : Lanes d L a5 a7 g5 g7' 200 := Eq.mp (congrArg (Lanes d L a5 a7 g5 g7') trips3) hl7
        sl_exec
        sl_step
        isplitr; · iexact Hmw
        isplitl [HO]
        · iexists _; isplitr
          rotate_left
          · iexact HO
          ipureintro; intro p hp
          rcases Finset.mem_insert.mp hp with rfl | hp
          · exact .inr rfl
          rcases Finset.mem_insert.mp hp with rfl | hp
          · exact .inr rfl
          rcases Finset.mem_insert.mp hp with rfl | hp
          · exact .inr rfl
          rcases Finset.mem_insert.mp hp with rfl | hp
          · exact .inr rfl
          exact hW' p hp
        isplitl [HX F8_src F9_src]
        · iapply (Entails.of_eq (xSet_in (xP d L fx) k.val hk).symm)
          isplitl [F8_src]; · iapply (Entails.of_eq (xP_pos d L fx v0).symm); iexact F8_src
          isplitl [F9_src]; · iapply (Entails.of_eq (xP_pos d L fx v1).symm); iexact F9_src
          iexact HX
        isplitl [HOut F10_dst F11_dst]
        · iapply (Entails.of_eq (oSet_in (oMix d L fx (k.val + 1)) k.val hk (by omega)).symm)
          isplitl [F10_dst]; · iapply (Entails.of_eq ((oMix_lt d L fx (t := k.val + 1) (n := 2 * k.val - 2) (by omega)).trans (oQ_pos d L fx hm0.2)).symm); iexact F10_dst
          isplitl [F11_dst]
          · iapply (Entails.of_eq ((oMix_lt d L fx (t := k.val + 1) (n := 2 * k.val - 1) (by omega)).trans (oQ_pos d L fx (n := 2 * k.val - 1) (by have := hm1.2; rwa [show 2 * k.val + 1 - 2 = 2 * k.val - 1 by omega] at this))).symm)
            iapply (Entails.of_eq (congrArg (oqPiece d L fx) (show 2 * k.val + 1 - 2 = 2 * k.val - 1 by omega))); iexact F11_dst
          iapply (Entails.of_eq (oMix_core d L fx k.val)); iexact HOut
        isplitl [F8]
        · iapply (Entails.of_eq (congrArg (inSlotV d L fx a4 cc3_scratch4.sem) (show 2 * k.val + 2 = 2 * (k.val + 1) by ring)))
          iapply (fl_inV d L fx (off_6 L k v2) (k3_off6_inb L k k3_h3) v2 a4 cc3_scratch4.sem); iexists _, _
          isplitr
          rotate_left
          · iexact F8
          ipureintro; intro y; rfl
        isplitl [F10 H6]
        · iapply (Entails.of_eq (congrArg (outSlotV d L fx a6 cc3_scratch6.sem) (show 2 * k.val + 2 = 2 * (k.val + 1) by ring)))
          iapply (fl_outV d L fx (off_5 L k v0) (k3_off5_inb L k k3_h2) v0 a4 a6 cc3_scratch6.sem f0 g4 g6' hl6 hin4); iexists _
          isplitr
          rotate_left
          · isplitl [F10]; · iexact F10
            iexact H6
          ipureintro; intro y; rfl
        isplitl [F9]
        · iapply (Entails.of_eq (congrArg (inSlotV d L fx a5 cc3_scratch5.sem) (show 2 * k.val + 3 = 2 * (k.val + 1) + 1 by ring)))
          iapply (fl_inV d L fx (off_11 L k v3') (k3_off11_inb L k k3_h6) v3' a5 cc3_scratch5.sem); iexists _, _
          isplitr
          rotate_left
          · iexact F9
          ipureintro; intro y; rfl
        · iapply (Entails.of_eq (congrArg (outSlotV d L fx a7 cc3_scratch7.sem) (show 2 * k.val + 1 + 2 = 2 * (k.val + 1) + 1 by ring)))
          iapply (fl_outV d L fx (off_10 L k v1) (k3_off10_inb L k k3_h5) v1 a5 a7 cc3_scratch7.sem f1 g5 g7' hl7 hin5); iexists _
          isplitr
          rotate_left
          · isplitl [F11]; · iexact F11
            iexact H7
          ipureintro; intro y; rfl
      · by_cases h6 : k.val = 6
        · have hb : ¬ big L := fun hb => v3 (Or.inr ⟨by omega, hb⟩)
          -- trip 6 of a tile with fifteen pieces: no sixteenth piece to fetch
          have k3_h1 : k3_cond1 k = 1#1 := (cond1_iff k).mpr (by omega)
          have k3_h2 : k3_cond2 L k = 1#1 := cond2_iff L k
          have k3_h3 : k3_cond3 L k = 1#1 := (cond3_iff L k).mpr (by omega)
          have k3_h4 : k3_cond4 k = 1#1 := (cond4_iff k).mpr (by omega)
          have k3_h5 : k3_cond5 L k = 1#1 := (cond5_iff L k).mpr (by first | (unfold valid big at *; omega) | (unfold big at *; omega) | omega)
          have k3_h6 : ¬ k3_cond6 L k = 1#1 := fun h => absurd ((cond6_iff L k).mp h) (by first | (unfold valid big at *; omega) | (unfold big at *; omega) | omega)
          have v0 : valid L (2 * k.val) := by unfold valid big at *; omega
          have v1 : valid L (2 * k.val + 1) := by unfold valid big at *; omega
          have v2 : valid L (2 * k.val + 2) := by unfold valid big at *; omega
          have v3' : ¬ valid L (2 * k.val + 3) := by unfold valid big at *; omega
          have hm0 : 2 ≤ 2 * k.val ∧ valid L (2 * k.val - 2) := ⟨by omega, by unfold valid big at *; omega⟩
          have hm1 : 2 ≤ 2 * k.val + 1 ∧ valid L (2 * k.val + 1 - 2) := ⟨by omega, by unfold valid big at *; omega⟩
          ihave S8 := (Entails.of_eq (inSlotV_pos d L fx v0)) $$ S8
          icases S8 with ⟨%g4, %hin4, F8⟩
          ihave S9 := (Entails.of_eq (inSlotV_pos d L fx v1)) $$ S9
          icases S9 with ⟨%g5, %hin5, F9⟩
          ihave S10 := (Entails.of_eq (outSlotV_pos d L fx hm0)) $$ S10
          icases S10 with ⟨%g6, F10, R6⟩
          ihave S11 := (Entails.of_eq (outSlotV_pos d L fx hm1)) $$ S11
          icases S11 with ⟨%g7, F11, R7⟩
          ihave HX := (Entails.of_eq (xSet_out (xP d L fx) k.val hk)) $$ HX
          icases HX with ⟨X2, -, HX⟩
          ihave X2 := (Entails.of_eq (xP_pos d L fx v2)) $$ X2
          ihave X2 := (Entails.of_eq (in_congr d L (off_6 L k v2).symm (in_inb L _) (k3_off6_inb L k k3_h3) fx)) $$ X2
          ihave HOut := (Entails.of_eq (oSet_out (oMix d L fx k.val) k.val hk)) $$ HOut
          icases HOut with ⟨Y0, Y1, HOut⟩
          ihave Y0 := (Entails.of_eq ((oMix_ge d L fx (t := k.val) (n := 2 * k.val) (by omega)).trans (oP_pos (F := F) d L v0))) $$ Y0
          icases Y0 with ⟨%f0, Y0⟩
          ihave Y0 := (Entails.of_eq (out_congr d L (off_5 L k v0).symm (out_inb L _) (k3_off5_inb L k k3_h2) f0)) $$ Y0
          ihave Y1 := (Entails.of_eq ((oMix_ge d L fx (t := k.val) (n := 2 * k.val + 1) (by omega)).trans (oP_pos (F := F) d L v1))) $$ Y1
          icases Y1 with ⟨%f1, Y1⟩
          ihave Y1 := (Entails.of_eq (out_congr d L (off_10 L k v1).symm (out_inb L _) (k3_off10_inb L k k3_h5) f1)) $$ Y1
          sl_exec
          sl_for (laneV0 d L g4) $$ [F8_dst R6]
          case region =>
            intro (j : Fin k3_t2_loop.trips) _
            unfold laneV0
            iintro ⟨HA, %g, HB, %hl⟩
            sl_exec
            sl_step
            isplitl [HA]; · iexact HA
            iexists _; isplitl [HB]; · iexact HB
            ipureintro; exact lanes_step d L a4 a6 g4 g j _ _ hl
          · unfold laneV0
            isplitl [F8_dst]; · iexact F8_dst
            iexists _; isplitl [R6]; · iexact R6
            ipureintro; exact lanes_zero d L a4 a6 g4 _
          iintro %_ HI
          unfold laneV0
          icases HI with ⟨H4, %g6', H6, %hl6⟩
          have hl6 : Lanes d L a4 a6 g4 g6' 200 := Eq.mp (congrArg (Lanes d L a4 a6 g4 g6') trips2) hl6
          sl_exec
          sl_for (laneV1 d L g5) $$ [F9_dst R7]
          case region =>
            intro (j : Fin k3_t3_loop.trips) _
            unfold laneV1
            iintro ⟨HA, %g, HB, %hl⟩
            sl_exec
            sl_step
            isplitl [HA]; · iexact HA
            iexists _; isplitl [HB]; · iexact HB
            ipureintro; exact lanes_step' d L a5 a7 g5 g j _ _ hl
          · unfold laneV1
            isplitl [F9_dst]; · iexact F9_dst
            iexists _; isplitl [R7]; · iexact R7
            ipureintro; exact lanes_zero d L a5 a7 g5 _
          iintro %_ HI
          unfold laneV1
          icases HI with ⟨H5, %g7', H7, %hl7⟩
          have hl7 : Lanes d L a5 a7 g5 g7' 200 := Eq.mp (congrArg (Lanes d L a5 a7 g5 g7') trips3) hl7
          sl_exec
          sl_step
          isplitr; · iexact Hmw
          isplitl [HO]
          · iexists _; isplitr
            rotate_left
            · iexact HO
            ipureintro; intro p hp
            rcases Finset.mem_insert.mp hp with rfl | hp
            · exact .inr rfl
            rcases Finset.mem_insert.mp hp with rfl | hp
            · exact .inr rfl
            rcases Finset.mem_insert.mp hp with rfl | hp
            · exact .inr rfl
            rcases Finset.mem_insert.mp hp with rfl | hp
            · exact .inr rfl
            exact hW' p hp
          isplitl [HX F8_src F9_src]
          · iapply (Entails.of_eq (xSet_in (xP d L fx) k.val hk).symm)
            isplitl [F8_src]; · iapply (Entails.of_eq (xP_pos d L fx v0).symm); iexact F8_src
            isplitl [F9_src]; · iapply (Entails.of_eq (xP_pos d L fx v1).symm); iexact F9_src
            iexact HX
          isplitl [HOut F10_dst F11_dst]
          · iapply (Entails.of_eq (oSet_in (oMix d L fx (k.val + 1)) k.val hk (by omega)).symm)
            isplitl [F10_dst]; · iapply (Entails.of_eq ((oMix_lt d L fx (t := k.val + 1) (n := 2 * k.val - 2) (by omega)).trans (oQ_pos d L fx hm0.2)).symm); iexact F10_dst
            isplitl [F11_dst]
            · iapply (Entails.of_eq ((oMix_lt d L fx (t := k.val + 1) (n := 2 * k.val - 1) (by omega)).trans (oQ_pos d L fx (n := 2 * k.val - 1) (by have := hm1.2; rwa [show 2 * k.val + 1 - 2 = 2 * k.val - 1 by omega] at this))).symm)
              iapply (Entails.of_eq (congrArg (oqPiece d L fx) (show 2 * k.val + 1 - 2 = 2 * k.val - 1 by omega))); iexact F11_dst
            iapply (Entails.of_eq (oMix_core d L fx k.val)); iexact HOut
          isplitl [F8]
          · iapply (Entails.of_eq (congrArg (inSlotV d L fx a4 cc3_scratch4.sem) (show 2 * k.val + 2 = 2 * (k.val + 1) by ring)))
            iapply (fl_inV d L fx (off_6 L k v2) (k3_off6_inb L k k3_h3) v2 a4 cc3_scratch4.sem); iexists _, _
            isplitr
            rotate_left
            · iexact F8
            ipureintro; intro y; rfl
          isplitl [F10 H6]
          · iapply (Entails.of_eq (congrArg (outSlotV d L fx a6 cc3_scratch6.sem) (show 2 * k.val + 2 = 2 * (k.val + 1) by ring)))
            iapply (fl_outV d L fx (off_5 L k v0) (k3_off5_inb L k k3_h2) v0 a4 a6 cc3_scratch6.sem f0 g4 g6' hl6 hin4); iexists _
            isplitr
            rotate_left
            · isplitl [F10]; · iexact F10
              iexact H6
            ipureintro; intro y; rfl
          isplitl [H5 F9]
          · iapply (Entails.of_eq (congrArg (inSlotV d L fx a5 cc3_scratch5.sem) (show 2 * k.val + 3 = 2 * (k.val + 1) + 1 by ring)))
            iapply (Entails.of_eq (inSlotV_neg d L fx v3').symm)
            isplitl [H5]; · iexists _; iexact H5
            iexact F9
          · iapply (Entails.of_eq (congrArg (outSlotV d L fx a7 cc3_scratch7.sem) (show 2 * k.val + 1 + 2 = 2 * (k.val + 1) + 1 by ring)))
            iapply (fl_outV d L fx (off_10 L k v1) (k3_off10_inb L k k3_h5) v1 a5 a7 cc3_scratch7.sem f1 g5 g7' hl7 hin5); iexists _
            isplitr
            rotate_left
            · isplitl [F11]; · iexact F11
              iexact H7
            ipureintro; intro y; rfl
        · have h7 : k.val = 7 := by unfold valid at v3; omega
          by_cases hb : big L
          · -- the last trip of a tile with sixteen pieces: nothing more to fetch
            have k3_h1 : k3_cond1 k = 1#1 := (cond1_iff k).mpr (by omega)
            have k3_h2 : k3_cond2 L k = 1#1 := cond2_iff L k
            have k3_h3 : ¬ k3_cond3 L k = 1#1 := fun h => absurd ((cond3_iff L k).mp h) (by omega)
            have k3_h4 : k3_cond4 k = 1#1 := (cond4_iff k).mpr (by omega)
            have k3_h5 : k3_cond5 L k = 1#1 := (cond5_iff L k).mpr (by first | (unfold valid big at *; omega) | (unfold big at *; omega) | omega)
            have k3_h6 : ¬ k3_cond6 L k = 1#1 := fun h => absurd ((cond6_iff L k).mp h) (by first | (unfold valid big at *; omega) | (unfold big at *; omega) | omega)
            have v0 : valid L (2 * k.val) := by unfold valid big at *; omega
            have v1 : valid L (2 * k.val + 1) := by unfold valid big at *; omega
            have v2 : ¬ valid L (2 * k.val + 2) := by unfold valid big at *; omega
            have v3' : ¬ valid L (2 * k.val + 3) := by unfold valid big at *; omega
            have hm0 : 2 ≤ 2 * k.val ∧ valid L (2 * k.val - 2) := ⟨by omega, by unfold valid big at *; omega⟩
            have hm1 : 2 ≤ 2 * k.val + 1 ∧ valid L (2 * k.val + 1 - 2) := ⟨by omega, by unfold valid big at *; omega⟩
            ihave S8 := (Entails.of_eq (inSlotV_pos d L fx v0)) $$ S8
            icases S8 with ⟨%g4, %hin4, F8⟩
            ihave S9 := (Entails.of_eq (inSlotV_pos d L fx v1)) $$ S9
            icases S9 with ⟨%g5, %hin5, F9⟩
            ihave S10 := (Entails.of_eq (outSlotV_pos d L fx hm0)) $$ S10
            icases S10 with ⟨%g6, F10, R6⟩
            ihave S11 := (Entails.of_eq (outSlotV_pos d L fx hm1)) $$ S11
            icases S11 with ⟨%g7, F11, R7⟩
            ihave HX := (Entails.of_eq (xSet_out (xP d L fx) k.val hk)) $$ HX
            icases HX with ⟨-, -, HX⟩
            ihave HOut := (Entails.of_eq (oSet_out (oMix d L fx k.val) k.val hk)) $$ HOut
            icases HOut with ⟨Y0, Y1, HOut⟩
            ihave Y0 := (Entails.of_eq ((oMix_ge d L fx (t := k.val) (n := 2 * k.val) (by omega)).trans (oP_pos (F := F) d L v0))) $$ Y0
            icases Y0 with ⟨%f0, Y0⟩
            ihave Y0 := (Entails.of_eq (out_congr d L (off_5 L k v0).symm (out_inb L _) (k3_off5_inb L k k3_h2) f0)) $$ Y0
            ihave Y1 := (Entails.of_eq ((oMix_ge d L fx (t := k.val) (n := 2 * k.val + 1) (by omega)).trans (oP_pos (F := F) d L v1))) $$ Y1
            icases Y1 with ⟨%f1, Y1⟩
            ihave Y1 := (Entails.of_eq (out_congr d L (off_10 L k v1).symm (out_inb L _) (k3_off10_inb L k k3_h5) f1)) $$ Y1
            sl_exec
            sl_for (laneV0 d L g4) $$ [F8_dst R6]
            case region =>
              intro (j : Fin k3_t2_loop.trips) _
              unfold laneV0
              iintro ⟨HA, %g, HB, %hl⟩
              sl_exec
              sl_step
              isplitl [HA]; · iexact HA
              iexists _; isplitl [HB]; · iexact HB
              ipureintro; exact lanes_step d L a4 a6 g4 g j _ _ hl
            · unfold laneV0
              isplitl [F8_dst]; · iexact F8_dst
              iexists _; isplitl [R6]; · iexact R6
              ipureintro; exact lanes_zero d L a4 a6 g4 _
            iintro %_ HI
            unfold laneV0
            icases HI with ⟨H4, %g6', H6, %hl6⟩
            have hl6 : Lanes d L a4 a6 g4 g6' 200 := Eq.mp (congrArg (Lanes d L a4 a6 g4 g6') trips2) hl6
            sl_exec
            sl_for (laneV1 d L g5) $$ [F9_dst R7]
            case region =>
              intro (j : Fin k3_t3_loop.trips) _
              unfold laneV1
              iintro ⟨HA, %g, HB, %hl⟩
              sl_exec
              sl_step
              isplitl [HA]; · iexact HA
              iexists _; isplitl [HB]; · iexact HB
              ipureintro; exact lanes_step' d L a5 a7 g5 g j _ _ hl
            · unfold laneV1
              isplitl [F9_dst]; · iexact F9_dst
              iexists _; isplitl [R7]; · iexact R7
              ipureintro; exact lanes_zero d L a5 a7 g5 _
            iintro %_ HI
            unfold laneV1
            icases HI with ⟨H5, %g7', H7, %hl7⟩
            have hl7 : Lanes d L a5 a7 g5 g7' 200 := Eq.mp (congrArg (Lanes d L a5 a7 g5 g7') trips3) hl7
            sl_exec
            sl_step
            isplitr; · iexact Hmw
            isplitl [HO]
            · iexists _; isplitr
              rotate_left
              · iexact HO
              ipureintro; intro p hp
              rcases Finset.mem_insert.mp hp with rfl | hp
              · exact .inr rfl
              rcases Finset.mem_insert.mp hp with rfl | hp
              · exact .inr rfl
              rcases Finset.mem_insert.mp hp with rfl | hp
              · exact .inr rfl
              rcases Finset.mem_insert.mp hp with rfl | hp
              · exact .inr rfl
              exact hW' p hp
            isplitl [HX F8_src F9_src]
            · iapply (Entails.of_eq (xSet_in (xP d L fx) k.val hk).symm)
              isplitl [F8_src]; · iapply (Entails.of_eq (xP_pos d L fx v0).symm); iexact F8_src
              isplitl [F9_src]; · iapply (Entails.of_eq (xP_pos d L fx v1).symm); iexact F9_src
              iexact HX
            isplitl [HOut F10_dst F11_dst]
            · iapply (Entails.of_eq (oSet_in (oMix d L fx (k.val + 1)) k.val hk (by omega)).symm)
              isplitl [F10_dst]; · iapply (Entails.of_eq ((oMix_lt d L fx (t := k.val + 1) (n := 2 * k.val - 2) (by omega)).trans (oQ_pos d L fx hm0.2)).symm); iexact F10_dst
              isplitl [F11_dst]
              · iapply (Entails.of_eq ((oMix_lt d L fx (t := k.val + 1) (n := 2 * k.val - 1) (by omega)).trans (oQ_pos d L fx (n := 2 * k.val - 1) (by have := hm1.2; rwa [show 2 * k.val + 1 - 2 = 2 * k.val - 1 by omega] at this))).symm)
                iapply (Entails.of_eq (congrArg (oqPiece d L fx) (show 2 * k.val + 1 - 2 = 2 * k.val - 1 by omega))); iexact F11_dst
              iapply (Entails.of_eq (oMix_core d L fx k.val)); iexact HOut
            isplitl [H4 F8]
            · iapply (Entails.of_eq (congrArg (inSlotV d L fx a4 cc3_scratch4.sem) (show 2 * k.val + 2 = 2 * (k.val + 1) by ring)))
              iapply (Entails.of_eq (inSlotV_neg d L fx v2).symm)
              isplitl [H4]; · iexists _; iexact H4
              iexact F8
            isplitl [F10 H6]
            · iapply (Entails.of_eq (congrArg (outSlotV d L fx a6 cc3_scratch6.sem) (show 2 * k.val + 2 = 2 * (k.val + 1) by ring)))
              iapply (fl_outV d L fx (off_5 L k v0) (k3_off5_inb L k k3_h2) v0 a4 a6 cc3_scratch6.sem f0 g4 g6' hl6 hin4); iexists _
              isplitr
              rotate_left
              · isplitl [F10]; · iexact F10
                iexact H6
              ipureintro; intro y; rfl
            isplitl [H5 F9]
            · iapply (Entails.of_eq (congrArg (inSlotV d L fx a5 cc3_scratch5.sem) (show 2 * k.val + 3 = 2 * (k.val + 1) + 1 by ring)))
              iapply (Entails.of_eq (inSlotV_neg d L fx v3').symm)
              isplitl [H5]; · iexists _; iexact H5
              iexact F9
            · iapply (Entails.of_eq (congrArg (outSlotV d L fx a7 cc3_scratch7.sem) (show 2 * k.val + 1 + 2 = 2 * (k.val + 1) + 1 by ring)))
              iapply (fl_outV d L fx (off_10 L k v1) (k3_off10_inb L k k3_h5) v1 a5 a7 cc3_scratch7.sem f1 g5 g7' hl7 hin5); iexists _
              isplitr
              rotate_left
              · isplitl [F11]; · iexact F11
                iexact H7
              ipureintro; intro y; rfl
          · -- the last trip of a tile with fifteen pieces: the second slot only drains
            have k3_h1 : k3_cond1 k = 1#1 := (cond1_iff k).mpr (by omega)
            have k3_h2 : k3_cond2 L k = 1#1 := cond2_iff L k
            have k3_h3 : ¬ k3_cond3 L k = 1#1 := fun h => absurd ((cond3_iff L k).mp h) (by omega)
            have k3_h4 : k3_cond4 k = 1#1 := (cond4_iff k).mpr (by omega)
            have k3_h5 : ¬ k3_cond5 L k = 1#1 := fun h => absurd ((cond5_iff L k).mp h) (by first | (unfold valid big at *; omega) | (unfold big at *; omega) | omega)
            have k3_h6 : ¬ k3_cond6 L k = 1#1 := fun h => absurd ((cond6_iff L k).mp h) (by first | (unfold valid big at *; omega) | (unfold big at *; omega) | omega)
            have v0 : valid L (2 * k.val) := by unfold valid big at *; omega
            have v1 : ¬ valid L (2 * k.val + 1) := by unfold valid big at *; omega
            have v2 : ¬ valid L (2 * k.val + 2) := by unfold valid big at *; omega
            have v3' : ¬ valid L (2 * k.val + 3) := by unfold valid big at *; omega
            have hm0 : 2 ≤ 2 * k.val ∧ valid L (2 * k.val - 2) := ⟨by omega, by unfold valid big at *; omega⟩
            have hm1 : 2 ≤ 2 * k.val + 1 ∧ valid L (2 * k.val + 1 - 2) := ⟨by omega, by unfold valid big at *; omega⟩
            ihave S8 := (Entails.of_eq (inSlotV_pos d L fx v0)) $$ S8
            icases S8 with ⟨%g4, %hin4, F8⟩
            ihave S9 := (Entails.of_eq (inSlotV_neg d L fx v1)) $$ S9
            icases S9 with ⟨⟨%g5, H5⟩, F9⟩
            ihave S10 := (Entails.of_eq (outSlotV_pos d L fx hm0)) $$ S10
            icases S10 with ⟨%g6, F10, R6⟩
            ihave S11 := (Entails.of_eq (outSlotV_pos d L fx hm1)) $$ S11
            icases S11 with ⟨%g7, F11, R7⟩
            ihave HX := (Entails.of_eq (xSet_out (xP d L fx) k.val hk)) $$ HX
            icases HX with ⟨-, -, HX⟩
            ihave HOut := (Entails.of_eq (oSet_out (oMix d L fx k.val) k.val hk)) $$ HOut
            icases HOut with ⟨Y0, -, HOut⟩
            ihave Y0 := (Entails.of_eq ((oMix_ge d L fx (t := k.val) (n := 2 * k.val) (by omega)).trans (oP_pos (F := F) d L v0))) $$ Y0
            icases Y0 with ⟨%f0, Y0⟩
            ihave Y0 := (Entails.of_eq (out_congr d L (off_5 L k v0).symm (out_inb L _) (k3_off5_inb L k k3_h2) f0)) $$ Y0
            sl_exec
            sl_for (laneV0 d L g4) $$ [F8_dst R6]
            case region =>
              intro (j : Fin k3_t2_loop.trips) _
              unfold laneV0
              iintro ⟨HA, %g, HB, %hl⟩
              sl_exec
              sl_step
              isplitl [HA]; · iexact HA
              iexists _; isplitl [HB]; · iexact HB
              ipureintro; exact lanes_step d L a4 a6 g4 g j _ _ hl
            · unfold laneV0
              isplitl [F8_dst]; · iexact F8_dst
              iexists _; isplitl [R6]; · iexact R6
              ipureintro; exact lanes_zero d L a4 a6 g4 _
            iintro %_ HI
            unfold laneV0
            icases HI with ⟨H4, %g6', H6, %hl6⟩
            have hl6 : Lanes d L a4 a6 g4 g6' 200 := Eq.mp (congrArg (Lanes d L a4 a6 g4 g6') trips2) hl6
            sl_exec
            sl_step
            isplitr; · iexact Hmw
            isplitl [HO]
            · iexists _; isplitr
              rotate_left
              · iexact HO
              ipureintro; intro p hp
              rcases Finset.mem_insert.mp hp with rfl | hp
              · exact .inr rfl
              rcases Finset.mem_insert.mp hp with rfl | hp
              · exact .inr rfl
              rcases Finset.mem_insert.mp hp with rfl | hp
              · exact .inr rfl
              exact hW' p hp
            isplitl [HX F8_src]
            · iapply (Entails.of_eq (xSet_in (xP d L fx) k.val hk).symm)
              isplitl [F8_src]; · iapply (Entails.of_eq (xP_pos d L fx v0).symm); iexact F8_src
              isplitr; · iapply (Entails.of_eq (xP_neg d L fx v1).symm); iempintro
              iexact HX
            isplitl [HOut F10_dst F11_dst]
            · iapply (Entails.of_eq (oSet_in (oMix d L fx (k.val + 1)) k.val hk (by omega)).symm)
              isplitl [F10_dst]; · iapply (Entails.of_eq ((oMix_lt d L fx (t := k.val + 1) (n := 2 * k.val - 2) (by omega)).trans (oQ_pos d L fx hm0.2)).symm); iexact F10_dst
              isplitl [F11_dst]
              · iapply (Entails.of_eq ((oMix_lt d L fx (t := k.val + 1) (n := 2 * k.val - 1) (by omega)).trans (oQ_pos d L fx (n := 2 * k.val - 1) (by have := hm1.2; rwa [show 2 * k.val + 1 - 2 = 2 * k.val - 1 by omega] at this))).symm)
                iapply (Entails.of_eq (congrArg (oqPiece d L fx) (show 2 * k.val + 1 - 2 = 2 * k.val - 1 by omega))); iexact F11_dst
              iapply (Entails.of_eq (oMix_core d L fx k.val)); iexact HOut
            isplitl [H4 F8]
            · iapply (Entails.of_eq (congrArg (inSlotV d L fx a4 cc3_scratch4.sem) (show 2 * k.val + 2 = 2 * (k.val + 1) by ring)))
              iapply (Entails.of_eq (inSlotV_neg d L fx v2).symm)
              isplitl [H4]; · iexists _; iexact H4
              iexact F8
            isplitl [F10 H6]
            · iapply (Entails.of_eq (congrArg (outSlotV d L fx a6 cc3_scratch6.sem) (show 2 * k.val + 2 = 2 * (k.val + 1) by ring)))
              iapply (fl_outV d L fx (off_5 L k v0) (k3_off5_inb L k k3_h2) v0 a4 a6 cc3_scratch6.sem f0 g4 g6' hl6 hin4); iexists _
              isplitr
              rotate_left
              · isplitl [F10]; · iexact F10
                iexact H6
              ipureintro; intro y; rfl
            isplitl [H5 F9]
            · iapply (Entails.of_eq (congrArg (inSlotV d L fx a5 cc3_scratch5.sem) (show 2 * k.val + 3 = 2 * (k.val + 1) + 1 by ring)))
              iapply (Entails.of_eq (inSlotV_neg d L fx v3').symm)
              isplitl [H5]; · iexists _; iexact H5
              iexact F9
            · iapply (Entails.of_eq (outSlotV_neg d L fx (m := 2 * (k.val + 1) + 1) (by intro h; apply v1; have := h.2; rwa [show 2 * (k.val + 1) + 1 - 2 = 2 * k.val + 1 by omega] at this)).symm)
              isplitl [R7]; · iexists _; iexact R7
              iexact F11
    · have hk0 : k.val = 0 := by omega
      -- the first trip: nothing to drain
      have k3_h1 : ¬ k3_cond1 k = 1#1 := fun h => absurd ((cond1_iff k).mp h) (by omega)
      have k3_h2 : k3_cond2 L k = 1#1 := cond2_iff L k
      have k3_h3 : k3_cond3 L k = 1#1 := (cond3_iff L k).mpr (by omega)
      have k3_h4 : ¬ k3_cond4 k = 1#1 := fun h => absurd ((cond4_iff k).mp h) (by omega)
      have k3_h5 : k3_cond5 L k = 1#1 := (cond5_iff L k).mpr (by first | (unfold valid big at *; omega) | (unfold big at *; omega) | omega)
      have k3_h6 : k3_cond6 L k = 1#1 := (cond6_iff L k).mpr (by first | (unfold valid big at *; omega) | (unfold big at *; omega) | omega)
      have v0 : valid L (2 * k.val) := by unfold valid big at *; omega
      have v1 : valid L (2 * k.val + 1) := by unfold valid big at *; omega
      have v2 : valid L (2 * k.val + 2) := by unfold valid big at *; omega
      have v3' : valid L (2 * k.val + 3) := by unfold valid big at *; omega
      have hm0 : ¬ (2 ≤ 2 * k.val ∧ valid L (2 * k.val - 2)) := by omega
      have hm1 : ¬ (2 ≤ 2 * k.val + 1 ∧ valid L (2 * k.val + 1 - 2)) := by omega
      ihave S8 := (Entails.of_eq (inSlotV_pos d L fx v0)) $$ S8
      icases S8 with ⟨%g4, %hin4, F8⟩
      ihave S9 := (Entails.of_eq (inSlotV_pos d L fx v1)) $$ S9
      icases S9 with ⟨%g5, %hin5, F9⟩
      ihave S10 := (Entails.of_eq (outSlotV_neg d L fx hm0)) $$ S10
      icases S10 with ⟨⟨%g6, R6⟩, F10⟩
      ihave S11 := (Entails.of_eq (outSlotV_neg d L fx hm1)) $$ S11
      icases S11 with ⟨⟨%g7, R7⟩, F11⟩
      ihave HX := (Entails.of_eq (xSet_out (xP d L fx) k.val hk)) $$ HX
      icases HX with ⟨X2, X3, HX⟩
      ihave X2 := (Entails.of_eq (xP_pos d L fx v2)) $$ X2
      ihave X2 := (Entails.of_eq (in_congr d L (off_6 L k v2).symm (in_inb L _) (k3_off6_inb L k k3_h3) fx)) $$ X2
      ihave X3 := (Entails.of_eq (xP_pos d L fx v3')) $$ X3
      ihave X3 := (Entails.of_eq (in_congr d L (off_11 L k v3').symm (in_inb L _) (k3_off11_inb L k k3_h6) fx)) $$ X3
      ihave HOut := (Entails.of_eq (oSet_out (oMix d L fx k.val) k.val hk)) $$ HOut
      icases HOut with ⟨Y0, Y1, HOut⟩
      ihave Y0 := (Entails.of_eq ((oMix_ge d L fx (t := k.val) (n := 2 * k.val) (by omega)).trans (oP_pos (F := F) d L v0))) $$ Y0
      icases Y0 with ⟨%f0, Y0⟩
      ihave Y0 := (Entails.of_eq (out_congr d L (off_5 L k v0).symm (out_inb L _) (k3_off5_inb L k k3_h2) f0)) $$ Y0
      ihave Y1 := (Entails.of_eq ((oMix_ge d L fx (t := k.val) (n := 2 * k.val + 1) (by omega)).trans (oP_pos (F := F) d L v1))) $$ Y1
      icases Y1 with ⟨%f1, Y1⟩
      ihave Y1 := (Entails.of_eq (out_congr d L (off_10 L k v1).symm (out_inb L _) (k3_off10_inb L k k3_h5) f1)) $$ Y1
      sl_exec
      sl_for (laneV0 d L g4) $$ [F8_dst R6]
      case region =>
        intro (j : Fin k3_t2_loop.trips) _
        unfold laneV0
        iintro ⟨HA, %g, HB, %hl⟩
        sl_exec
        sl_step
        isplitl [HA]; · iexact HA
        iexists _; isplitl [HB]; · iexact HB
        ipureintro; exact lanes_step d L a4 a6 g4 g j _ _ hl
      · unfold laneV0
        isplitl [F8_dst]; · iexact F8_dst
        iexists _; isplitl [R6]; · iexact R6
        ipureintro; exact lanes_zero d L a4 a6 g4 _
      iintro %_ HI
      unfold laneV0
      icases HI with ⟨H4, %g6', H6, %hl6⟩
      have hl6 : Lanes d L a4 a6 g4 g6' 200 := Eq.mp (congrArg (Lanes d L a4 a6 g4 g6') trips2) hl6
      sl_exec
      sl_for (laneV1 d L g5) $$ [F9_dst R7]
      case region =>
        intro (j : Fin k3_t3_loop.trips) _
        unfold laneV1
        iintro ⟨HA, %g, HB, %hl⟩
        sl_exec
        sl_step
        isplitl [HA]; · iexact HA
        iexists _; isplitl [HB]; · iexact HB
        ipureintro; exact lanes_step' d L a5 a7 g5 g j _ _ hl
      · unfold laneV1
        isplitl [F9_dst]; · iexact F9_dst
        iexists _; isplitl [R7]; · iexact R7
        ipureintro; exact lanes_zero d L a5 a7 g5 _
      iintro %_ HI
      unfold laneV1
      icases HI with ⟨H5, %g7', H7, %hl7⟩
      have hl7 : Lanes d L a5 a7 g5 g7' 200 := Eq.mp (congrArg (Lanes d L a5 a7 g5 g7') trips3) hl7
      sl_exec
      sl_step
      isplitr; · iexact Hmw
      isplitl [HO]
      · iexists _; isplitr
        rotate_left
        · iexact HO
        ipureintro; intro p hp
        rcases Finset.mem_insert.mp hp with rfl | hp
        · exact .inr rfl
        rcases Finset.mem_insert.mp hp with rfl | hp
        · exact .inr rfl
        exact hW' p hp
      isplitl [HX F8_src F9_src]
      · iapply (Entails.of_eq (xSet_in (xP d L fx) k.val hk).symm)
        isplitl [F8_src]; · iapply (Entails.of_eq (xP_pos d L fx v0).symm); iexact F8_src
        isplitl [F9_src]; · iapply (Entails.of_eq (xP_pos d L fx v1).symm); iexact F9_src
        iexact HX
      isplitl [HOut]
      · iapply (Entails.of_eq (congrArg (fun s => bigSep s (oMix d L fx (k.val + 1))) (show oCore k.val = oSet (k.val + 1) by rw [hk0]; decide)))
        iapply (Entails.of_eq (oMix_core d L fx k.val)); iexact HOut
      isplitl [F8]
      · iapply (Entails.of_eq (congrArg (inSlotV d L fx a4 cc3_scratch4.sem) (show 2 * k.val + 2 = 2 * (k.val + 1) by ring)))
        iapply (fl_inV d L fx (off_6 L k v2) (k3_off6_inb L k k3_h3) v2 a4 cc3_scratch4.sem); iexists _, _
        isplitr
        rotate_left
        · iexact F8
        ipureintro; intro y; rfl
      isplitl [F10 H6]
      · iapply (Entails.of_eq (congrArg (outSlotV d L fx a6 cc3_scratch6.sem) (show 2 * k.val + 2 = 2 * (k.val + 1) by ring)))
        iapply (fl_outV d L fx (off_5 L k v0) (k3_off5_inb L k k3_h2) v0 a4 a6 cc3_scratch6.sem f0 g4 g6' hl6 hin4); iexists _
        isplitr
        rotate_left
        · isplitl [F10]; · iexact F10
          iexact H6
        ipureintro; intro y; rfl
      isplitl [F9]
      · iapply (Entails.of_eq (congrArg (inSlotV d L fx a5 cc3_scratch5.sem) (show 2 * k.val + 3 = 2 * (k.val + 1) + 1 by ring)))
        iapply (fl_inV d L fx (off_11 L k v3') (k3_off11_inb L k k3_h6) v3' a5 cc3_scratch5.sem); iexists _, _
        isplitr
        rotate_left
        · iexact F9
        ipureintro; intro y; rfl
      · iapply (Entails.of_eq (congrArg (outSlotV d L fx a7 cc3_scratch7.sem) (show 2 * k.val + 1 + 2 = 2 * (k.val + 1) + 1 by ring)))
        iapply (fl_outV d L fx (off_10 L k v1) (k3_off10_inb L k k3_h5) v1 a5 a7 cc3_scratch7.sem f1 g5 g7' hl7 hin5); iexists _
        isplitr
        rotate_left
        · isplitl [F11]; · iexact F11
          iexact H7
        ipureintro; intro y; rfl
  · unfold invV
    isplitr; · iexact Hmw
    isplitl [HO]
    · iexists W; isplitr
      · ipureintro; exact fun p hp => .inl hp
      · iexact HO
    isplitl [HX]; · iexact HX
    isplitl [HOut]; · iapply (Entails.of_eq (oMix_zero d L fx).symm); iexact HOut
    isplitl [S8]; · iexact S8
    isplitl [H6 Hs10]
    · rw [outSlotV_neg d L fx (by omega)]; isplitl [H6]; · iexists _; iexact H6
      iexact Hs10
    isplitl [S9]; · iexact S9
    rw [outSlotV_neg d L fx (by omega)]; isplitl [H7]; · iexists _; iexact H7
    iexact Hs11
  iintro %acc' HI
  ihave HI := (Entails.of_eq (congrArg (fun t => invV d L O W fx t acc') trips1)) $$ HI
  unfold invV
  icases HI with ⟨-, ⟨%W', %hW', HO⟩, HX, HOut, S8, S10, S9, S11⟩
  have nv16 : ¬ valid L (2 * 8) := by unfold valid; omega
  have nv17 : ¬ valid L (2 * 8 + 1) := by unfold valid; omega
  have hm14 : 2 ≤ 2 * 8 ∧ valid L (2 * 8 - 2) := ⟨by omega, Or.inl (by omega)⟩
  ihave S8 := (Entails.of_eq (inSlotV_neg d L fx nv16)) $$ S8
  icases S8 with ⟨⟨%g4', H4⟩, Hs8⟩
  ihave S9 := (Entails.of_eq (inSlotV_neg d L fx nv17)) $$ S9
  icases S9 with ⟨⟨%g5', H5⟩, Hs9⟩
  ihave S10 := (Entails.of_eq (outSlotV_pos d L fx hm14)) $$ S10
  icases S10 with ⟨%g6', F10, R6⟩
  by_cases hb : big L
  · have k3_h8 : k3_cond8 L = 1#1 := (cond8_iff L).mpr hb
    have hm15 : 2 ≤ 2 * 8 + 1 ∧ valid L (2 * 8 + 1 - 2) := ⟨by omega, Or.inr ⟨by omega, hb⟩⟩
    ihave S11 := (Entails.of_eq (outSlotV_pos d L fx hm15)) $$ S11
    icases S11 with ⟨%g7', F11, R7⟩
    sl_exec
    sl_step
    isplitl [HX]; · iapply (xRange_end d L fx); iexact HX
    isplitl [HOut F10_dst F11_dst]
    · iapply (Entails.of_eq (oRange_end (oQ d L fx)).symm)
      isplitl [F10_dst]; · iapply (Entails.of_eq (oQ_pos d L fx hm14.2).symm); iexact F10_dst
      isplitl [F11_dst]; · iapply (Entails.of_eq (oQ_pos d L fx hm15.2).symm); iexact F11_dst
      iapply (Entails.of_eq (oMix_end d L fx)); iexact HOut
    isplitl [H4]; · iexists _; iexact H4
    isplitl [H5]; · iexists _; iexact H5
    isplitl [R6]; · iexists _; iexact R6
    isplitl [R7]; · iexists _; iexact R7
    isplitl [Hs8]; · iexact Hs8
    isplitl [Hs9]; · iexact Hs9
    isplitl [F10]; · iexact F10
    isplitl [F11]; · iexact F11
    isplitl [HO]
    · iexists _; isplitr
      rotate_left
      · iexact HO
      ipureintro; intro p hp
      rcases Finset.mem_insert.mp hp with rfl | hp
      · exact .inr rfl
      rcases Finset.mem_insert.mp hp with rfl | hp
      · exact .inr rfl
      exact hW' p hp
    iexact HR
  · have k3_h8 : ¬ k3_cond8 L = 1#1 := fun h => hb ((cond8_iff L).mp h)
    have hm15 : ¬ (2 ≤ 2 * 8 + 1 ∧ valid L (2 * 8 + 1 - 2)) := by intro h; have := h.2; unfold valid at this; omega
    ihave S11 := (Entails.of_eq (outSlotV_neg d L fx hm15)) $$ S11
    icases S11 with ⟨⟨%g7', R7⟩, F11⟩
    sl_exec
    sl_step
    isplitl [HX]; · iapply (xRange_end d L fx); iexact HX
    isplitl [HOut F10_dst]
    · iapply (Entails.of_eq (oRange_end (oQ d L fx)).symm)
      isplitl [F10_dst]; · iapply (Entails.of_eq (oQ_pos d L fx hm14.2).symm); iexact F10_dst
      isplitr; · iapply (Entails.of_eq (oQ_neg d L fx (n := 15) (by unfold valid; omega)).symm); iempintro
      iapply (Entails.of_eq (oMix_end d L fx)); iexact HOut
    isplitl [H4]; · iexists _; iexact H4
    isplitl [H5]; · iexists _; iexact H5
    isplitl [R6]; · iexists _; iexact R6
    isplitl [R7]; · iexists _; iexact R7
    isplitl [Hs8]; · iexact Hs8
    isplitl [Hs9]; · iexact Hs9
    isplitl [F10]; · iexact F10
    isplitl [F11]; · iexact F11
    isplitl [HO]
    · iexists _; isplitr
      rotate_left
      · iexact HO
      ipureintro; intro p hp
      rcases Finset.mem_insert.mp hp with rfl | hp
      · exact .inr rfl
      exact hW' p hp
    iexact HR

/-! The subcore's scoped storage: the four staging buffers and the four semaphores of this call, and the rest. -/

abbrev c8 : GSem nD τ sig := (thr d L, SemLoc.dma cc3_scratch4.sem)
abbrev c9 : GSem nD τ sig := (thr d L, SemLoc.dma cc3_scratch5.sem)
abbrev c10 : GSem nD τ sig := (thr d L, SemLoc.dma cc3_scratch6.sem)
abbrev c11 : GSem nD τ sig := (thr d L, SemLoc.dma cc3_scratch7.sem)

omit [FloatOps F] in
theorem ownSems0_V :
    (ownSems0 (thr d L) : sProp 𝕄)
      = iprop(semVal (c8 d L) 0 ∗ semVal (c9 d L) 0 ∗ semVal (c10 d L) 0 ∗ semVal (c11 d L) 0
          ∗ bigSep (((((ownCells (thr d L)).erase (c8 d L)).erase (c9 d L)).erase (c10 d L)).erase (c11 d L)) fun g => semVal g 0) := by
  unfold SparseCore.Cfg.ownSems0
  rw [SparseCore.bigSep_erase' ((mem_ownCells (g := c8 d L)).mpr ⟨rfl, by
      show (SemLoc.dma cc3_scratch4.sem : SemLoc sig).isScoped .scVector = true; decide⟩),
    SparseCore.bigSep_erase' (Finset.mem_erase.mpr ⟨fun e => absurd (Prod.mk.inj e).2 (by decide), (mem_ownCells (g := c9 d L)).mpr ⟨rfl, by
      show (SemLoc.dma cc3_scratch5.sem : SemLoc sig).isScoped .scVector = true; decide⟩⟩),
    SparseCore.bigSep_erase' (Finset.mem_erase.mpr ⟨fun e => absurd (Prod.mk.inj e).2 (by decide), Finset.mem_erase.mpr ⟨fun e => absurd (Prod.mk.inj e).2 (by decide),
      (mem_ownCells (g := c10 d L)).mpr ⟨rfl, by show (SemLoc.dma cc3_scratch6.sem : SemLoc sig).isScoped .scVector = true; decide⟩⟩⟩),
    SparseCore.bigSep_erase' (Finset.mem_erase.mpr ⟨fun e => absurd (Prod.mk.inj e).2 (by decide), Finset.mem_erase.mpr ⟨fun e => absurd (Prod.mk.inj e).2 (by decide),
      Finset.mem_erase.mpr ⟨fun e => absurd (Prod.mk.inj e).2 (by decide),
      (mem_ownCells (g := c11 d L)).mpr ⟨rfl, by show (SemLoc.dma cc3_scratch7.sem : SemLoc sig).isScoped .scVector = true; decide⟩⟩⟩⟩)]

abbrev pV (L : grid3.Coords) : Proc τ := Proc.scVector (cV L) (jV L)

omit [FloatOps F] in
theorem ownBufs_V :
    (ownBufs (thr d L) : sProp 𝕄)
      = iprop((∃ f, (thr d L).loc cc3_scratch0 ↦{fullShare} f) ∗ (∃ f, (thr d L).loc cc3_scratch1 ↦{fullShare} f)
          ∗ (∃ f, (thr d L).loc cc3_scratch2 ↦{fullShare} f) ∗ (∃ f, (thr d L).loc cc3_scratch3 ↦{fullShare} f)
          ∗ bigSep (((((ownRefs (τ := τ) (pV L)).erase ((pV L).devRef cc3_scratch0)).erase ((pV L).devRef cc3_scratch1)).erase
              ((pV L).devRef cc3_scratch2)).erase ((pV L).devRef cc3_scratch3))
              fun b => iprop(∃ f, ((d, b) : Loc nD τ sig) ↦{fullShare} f)) := by
  unfold SparseCore.Cfg.ownBufs
  refine (SparseCore.bigSep_erase' (SparseCore.Cfg.mem_ownRefs_of_owner (p := pV L) (b := (pV L).devRef cc3_scratch0) rfl)).trans ?_
  rw [SparseCore.bigSep_erase' (Finset.mem_erase.mpr ⟨fun e => absurd (Proc.devRef_injective _ e) (show (cc3_scratch1 : Ref sig .scVector) ≠ cc3_scratch0 by decide),
      SparseCore.Cfg.mem_ownRefs_of_owner (p := pV L) (b := (pV L).devRef cc3_scratch1) rfl⟩),
    SparseCore.bigSep_erase' (Finset.mem_erase.mpr ⟨fun e => absurd (Proc.devRef_injective _ e) (show (cc3_scratch2 : Ref sig .scVector) ≠ cc3_scratch1 by decide),
      Finset.mem_erase.mpr ⟨fun e => absurd (Proc.devRef_injective _ e) (show (cc3_scratch2 : Ref sig .scVector) ≠ cc3_scratch0 by decide),
      SparseCore.Cfg.mem_ownRefs_of_owner (p := pV L) (b := (pV L).devRef cc3_scratch2) rfl⟩⟩),
    SparseCore.bigSep_erase' (Finset.mem_erase.mpr ⟨fun e => absurd (Proc.devRef_injective _ e) (show (cc3_scratch3 : Ref sig .scVector) ≠ cc3_scratch2 by decide),
      Finset.mem_erase.mpr ⟨fun e => absurd (Proc.devRef_injective _ e) (show (cc3_scratch3 : Ref sig .scVector) ≠ cc3_scratch1 by decide),
      Finset.mem_erase.mpr ⟨fun e => absurd (Proc.devRef_injective _ e) (show (cc3_scratch3 : Ref sig .scVector) ≠ cc3_scratch0 by decide),
      SparseCore.Cfg.mem_ownRefs_of_owner (p := pV L) (b := (pV L).devRef cc3_scratch3) rfl⟩⟩⟩)]

/-- The rest of the subcore's scoped storage, which the task does not touch. -/
def restR : sProp 𝕄 :=
  iprop((bigSep (((((ownRefs (τ := τ) (pV L)).erase ((pV L).devRef cc3_scratch0)).erase ((pV L).devRef cc3_scratch1)).erase
              ((pV L).devRef cc3_scratch2)).erase ((pV L).devRef cc3_scratch3))
              fun b => iprop(∃ f, ((d, b) : Loc nD τ sig) ↦{fullShare} f))
      ∗ bigSep (((((ownCells (thr d L)).erase (c8 d L)).erase (c9 d L)).erase (c10 d L)).erase (c11 d L)) fun g => semVal g 0)

theorem body_pre (hO : ∀ g, O g none = 0) :
    iprop(levAts (K (F := F)).L (K (F := F)).lev ∗ emp ∗ goRes d L fx ∗ ownBufs (thr d L) ∗ ownSems0 (thr d L) ∗ owes (thr d L) O W)
      ⊢ runPre d L O W fx (restR (F := F) d L) := by
  rw [ownSems0_V, ownBufs_V]
  unfold goRes runPre restR
  iintro ⟨#Hlv, -, ⟨HX, HOut⟩, ⟨H4, H5, H6, H7, Hbufs⟩, ⟨Hs8, Hs9, Hs10, Hs11, Hsems⟩, HO⟩
  ihave Hmw := ((K (F := F)).mayWaits_none (thr := thr d L) hO) $$ Hlv
  isplitr; · iexact Hmw
  isplitl [HO]; · iexact HO
  isplitl [HX]; · iexact HX
  isplitl [HOut]; · iexact HOut
  isplitl [H4]; · iexact H4
  isplitl [H5]; · iexact H5
  isplitl [H6]; · iexact H6
  isplitl [H7]; · iexact H7
  isplitl [Hs8]; · iexact Hs8
  isplitl [Hs9]; · iexact Hs9
  isplitl [Hs10]; · iexact Hs10
  isplitl [Hs11]; · iexact Hs11
  isplitl [Hbufs]; · iexact Hbufs
  iexact Hsems

theorem body_post :
    runPost d L O W fx (restR (F := F) d L)
      ⊢ iprop(tdRes d L fx ∗ ownBufs (thr d L) ∗ ownSems0 (thr d L) ∗ ∃ W', ⌜∀ p ∈ W', p ∈ W ∨ p.2 = none⌝ ∗ owes (thr d L) O W') := by
  rw [ownSems0_V, ownBufs_V]
  unfold tdRes runPost restR
  iintro ⟨HX, HOut, H4, H5, H6, H7, Hs8, Hs9, Hs10, Hs11, HW, Hbufs, Hsems⟩
  isplitl [HX HOut]
  · isplitl [HX]; · iexact HX
    iexact HOut
  isplitl [H4 H5 H6 H7 Hbufs]
  · isplitl [H4]; · iexact H4
    isplitl [H5]; · iexact H5
    isplitl [H6]; · iexact H6
    isplitl [H7]; · iexact H7
    iexact Hbufs
  isplitl [Hs8 Hs9 Hs10 Hs11 Hsems]
  · isplitl [Hs8]; · iexact Hs8
    isplitl [Hs9]; · iexact Hs9
    isplitl [Hs10]; · iexact Hs10
    isplitl [Hs11]; · iexact Hs11
    iexact Hsems
  iexact HW

/-- The task in the launch theorem's shape: from what the call hands the tile and the subcore's scoped storage to
    what the tile hands back and the storage again. -/
theorem tile_body (hF : (K (F := F)).Facts) (hO : ∀ g, O g none = 0) :
    iprop(levAts (K (F := F)).L (K (F := F)).lev ∗ emp ∗ goRes d L fx ∗ scopedBufs (thr d L) ∗ scopedSems0 (thr d L) ∗ owes (thr d L) O W)
      ⊢ wp frame (wpE (defs₀ (F := F)) 𝒱₀ (thr d L) none) Set.univ
          (cc3_sc_group L xtW (Memref.isWhole_whole _) oW (Memref.isWhole_whole _) a4 (Memref.isWhole_whole _) a5 (Memref.isWhole_whole _)
            a6 (Memref.isWhole_whole _) a7 (Memref.isWhole_whole _) cc3_scratch4 cc3_scratch5 cc3_scratch6 cc3_scratch7)
          fun _ => iprop(tdRes d L fx ∗ scopedBufs (thr d L) ∗ scopedSems0 (thr d L)
            ∗ ∃ W', ⌜∀ p ∈ W', p ∈ W ∨ p.2 = none⌝ ∗ owes (thr d L) O W') := by
  rw [(K (F := F)).scopedBufs_V hF d (cV L) (jV L), SparseCore.Cfg.scopedSems0_V (Val := Elt F) d (cV L) (jV L)]
  exact (body_pre d L O W fx hO).trans ((tile_run d L O W fx (restR (F := F) d L)).trans (wp_mono frame _ _ fun _ => body_post d L O W fx))

end Tile

end Cert.Proof.TileK3

end
-- ==== Proof.TileBVal3.lean ====
/-
  What the staging buffers of one vector subcore hold while it copies a piece of 3200 consecutive elements of row 3 of
  the transposed argument into the flat result, read index by index. No program and no ownership here: only the contents.

  A transfer lands the piece in row 0 of an 8 × 3200 staging array (`InRow`: position (0, t) of that row holds element
  (0, pos + t) of the transposed argument, `pos` the piece's first column). A loop of 200 trips copies that row, 16 lanes
  per trip, into the first 3200 elements of a flat staging array of 25600: trip `j` reads the 1 × 16 window at columns
  [16 j, 16 j + 16) of row 0 and writes it, flattened, at elements [16 j, 16 j + 16). After `j` trips the first 16 j
  elements of the flat array are the first 16 j elements of the row (`Lanes`); a trip extends the prefix by 16
  (`lanes_step`: an element below 16 j is outside the window written and keeps its value, an element of the window reads
  the lane written there, which is the row's element at the same column). A second transfer writes the first 3200
  elements of the flat array to the piece of the result at the same `pos`; so every element of that piece of the result
  holds the element of row 3 of the transposed argument at its own position (`out_written`): the composite of the three
  index maps t ↦ (0, pos + t) ↦ (0, t) ↦ t ↦ pos + t is the identity on positions of the row.
-/
import proofs.«206869_g37898791420194_cont_8to1_b_558_20_alg».proof.Proof.TileB3Defs
import proofs.«206869_g37898791420194_cont_8to1_b_558_20_alg».proof.Proof.Spec
import Idealize.ShloMosaic.Lib.WritesUnit
import Idealize.ShloMosaic.Lib.ValueLayout

noncomputable section

namespace Cert.Proof.TileBVal3

open Cert.Proof.TileB3 Cert.Kernel Cert.Kernel.Gen
open Idealize.ShloMosaic Idealize.ShloMosaic.ValueIdx

variable {F : FTy → Type} [FloatOps F]
variable (d : Dev nD) (L : grid3.Coords)
variable (fx : Buf (Elt F) ((Memref.whole main_v0_scv : Memref sig .scVector .hbm S22x1600000 .f32).view.loc (thr d L)))

abbrev rowRect : Rect S8x3200 := Rect.unit (s := S8x3200) ![0, 0] S1x3200.size inb_S8x3200_S1x3200_0_0

/-- row 0 of the staging array is piece n of the argument row -/
def InRow (a : Memref sig .scVector .vmem S8x3200 .f32) (ga : Buf (Elt F) (a.view.loc (thr d L))) (n : ℕ) : Prop :=
  ∀ y : S1x3200.Idx, a.view.read (Elt F) ga (rowRect.emb y) = (inM L n).view.read (Elt F) fx y

theorem inRow_fetch (a : Memref sig .scVector .vmem S8x3200 .f32) (gold : Buf (Elt F) (a.view.loc (thr d L)))
    (w : S1x3200.Idx → Elt F .f32) (n : ℕ) (hw : ∀ y, w y = (inM L n).view.read (Elt F) fx y) :
    InRow d L fx a (a.view.writes (Elt F) gold [⟨rowRect, w⟩]) n :=
  fun y => (View.read_writes_cons_emb a.view gold rowRect w [] y).trans (hw y)

def Lanes (a : Memref sig .scVector .vmem S8x3200 .f32) (b : Memref sig .scVector .vmem S25600 .f32)
    (ga : Buf (Elt F) (a.view.loc (thr d L))) (gb : Buf (Elt F) (b.view.loc (thr d L))) (j : ℕ) : Prop :=
  ∀ (r : ℕ) (hr : r < 3200), r < 16 * j →
    b.view.read (Elt F) gb (ix1 (⟨r, by omega⟩ : Fin 25600)) = a.view.read (Elt F) ga (ix2 (0 : Fin 8) (⟨r, hr⟩ : Fin 3200))

theorem lanes_zero (a : Memref sig .scVector .vmem S8x3200 .f32) (b : Memref sig .scVector .vmem S25600 .f32)
    (ga : Buf (Elt F) (a.view.loc (thr d L))) (gb : Buf (Elt F) (b.view.loc (thr d L))) : Lanes d L a b ga gb 0 := by
  intro r hr h; omega

/-- The 1 × 16 window at column `c` of the staging array, read at lane `t`, is element `(0, c + t)`. -/
theorem idx_window {off : Fin 2 → ℕ} {c : ℕ} (h : off = ![0, c]) (p : ∀ a', off a' + S1x16.size a' ≤ S8x3200.size a')
    (t : Fin 16) (hr : c + t.val < 3200) :
    (Rect.unit (s := S8x3200) off S1x16.size p).toLoadRect.idx (ix2 (0 : Fin 1) t) = ix2 (0 : Fin 8) (⟨c + t.val, hr⟩ : Fin 3200) := by
  subst h
  funext a'; apply Fin.ext
  rw [LoadRect.idx_apply]
  match a' with
  | ⟨0, _⟩ => show 0 + 1 * 0 = 0; omega
  | ⟨1, _⟩ => show c + 1 * t.val = c + t.val; omega

/-- One trip of a lane-copy loop, the offsets given by their closed forms. -/
theorem lanes_step_core (a : Memref sig .scVector .vmem S8x3200 .f32) (b : Memref sig .scVector .vmem S25600 .f32)
    (ga : Buf (Elt F) (a.view.loc (thr d L))) (gb : Buf (Elt F) (b.view.loc (thr d L)))
    (t : ℕ) {off3 : Fin 2 → ℕ} {off4 : Fin 1 → ℕ} (h3 : off3 = ![0, 16 * t]) (h4 : off4 = ![16 * t])
    (p3 : ∀ a', off3 a' + S1x16.size a' ≤ S8x3200.size a') (p4 : ∀ a', off4 a' + S16.size a' ≤ S25600.size a')
    (h : Lanes d L a b ga gb t) :
    Lanes d L a b ga (b.view.writes (Elt F) gb [⟨Rect.unit (s := S25600) off4 S16.size p4,
      shapeCast S16 (a.view.readAt (Elt F) (Rect.unit (s := S8x3200) off3 S1x16.size p3).toLoadRect ga) shapeCasts_S1x16_S16⟩]) (t + 1) := by
  intro r hr hlt
  by_cases hlo : r < 16 * t
  · refine (View.read_writes_cons_unit_of_not_mem b.view gb p4 _ [] _ h4 (0 : Fin 1) (Or.inl ?_)).trans (h r hr hlo)
    show r < 16 * t
    exact hlo
  · have hx : r - 16 * t < 16 := by omega
    refine (View.read_writes_cons_unit_of_mem b.view gb p4 _ [] _ (ix1 (⟨r - 16 * t, hx⟩ : Fin 16)) h4 ?_).trans ?_
    · intro a'
      match a' with
      | ⟨0, _⟩ => show r = 16 * t + (r - 16 * t); omega
    · rw [shapeCast_1a_a_apply, View.readAt_apply, idx_window h3 p3 ⟨r - 16 * t, hx⟩ (by show 16 * t + (r - 16 * t) < 3200; omega)]
      congr 2
      apply Fin.ext
      show 16 * t + (r - 16 * t) = r
      omega

theorem lanes_step (a : Memref sig .scVector .vmem S8x3200 .f32) (b : Memref sig .scVector .vmem S25600 .f32)
    (ga : Buf (Elt F) (a.view.loc (thr d L))) (gb : Buf (Elt F) (b.view.loc (thr d L)))
    (j : Fin k3_t2_loop.trips) (p3 : ∀ a', (k3_off3 j) a' + S1x16.size a' ≤ S8x3200.size a')
    (p4 : ∀ a', (k3_off4 j) a' + S16.size a' ≤ S25600.size a') (h : Lanes d L a b ga gb j.val) :
    Lanes d L a b ga (b.view.writes (Elt F) gb [⟨Rect.unit (s := S25600) (k3_off4 j) S16.size p4,
      k3_pay1 (a.view.readAt (Elt F) (Rect.unit (s := S8x3200) (k3_off3 j) S1x16.size p3).toLoadRect ga)⟩]) (j.val + 1) :=
  lanes_step_core d L a b ga gb j.val (k3_off3_eq j) (k3_off4_eq j) p3 p4 h

theorem lanes_step' (a : Memref sig .scVector .vmem S8x3200 .f32) (b : Memref sig .scVector .vmem S25600 .f32)
    (ga : Buf (Elt F) (a.view.loc (thr d L))) (gb : Buf (Elt F) (b.view.loc (thr d L)))
    (j : Fin k3_t3_loop.trips) (p3 : ∀ a', (k3_off8 j) a' + S1x16.size a' ≤ S8x3200.size a')
    (p4 : ∀ a', (k3_off9 j) a' + S16.size a' ≤ S25600.size a') (h : Lanes d L a b ga gb j.val) :
    Lanes d L a b ga (b.view.writes (Elt F) gb [⟨Rect.unit (s := S25600) (k3_off9 j) S16.size p4,
      k3_pay2 (a.view.readAt (Elt F) (Rect.unit (s := S8x3200) (k3_off8 j) S1x16.size p3).toLoadRect ga)⟩]) (j.val + 1) :=
  lanes_step_core d L a b ga gb j.val (k3_off8_eq j) (k3_off9_eq j) p3 p4 h

/-- Position `y` of the write-out window of the flat staging array is its element `y 0`. -/
theorem stg_emb (y : S3200.Idx) (hy : (y 0).val < 25600) :
    (Rect.unit (s := S25600) ![0] S3200.size inb_S25600_S3200_0).emb y = ix1 (⟨(y 0).val, hy⟩ : Fin 25600) := by
  funext a'; apply Fin.ext
  match a' with
  | ⟨0, _⟩ => show 0 + 1 * (y 0).val = (y 0).val; omega

/-- Position `(0, t)` of row 0 of the staging array is its element `(0, t)`. -/
theorem row_emb (t : Fin 3200) : rowRect.emb (ix2 (0 : Fin 1) t) = ix2 (0 : Fin 8) t := by
  funext a'; apply Fin.ext
  match a' with
  | ⟨0, _⟩ => show 0 + 1 * 0 = 0; omega
  | ⟨1, _⟩ => show 0 + 1 * t.val = t.val; omega

/-- Position `(0, t)` of piece `n` of the argument row is element `(0, pos + t)` of the transposed argument;
    position `y` of piece `n` of the result is element `pos + y 0` of the result. -/
theorem in_emb (n : ℕ) (t : Fin 3200) (h : pos L n + t.val < 1600000) :
    (inM L n).view.emb (ix2 (0 : Fin 1) t) = ix2 (3 : Fin 22) (⟨pos L n + t.val, h⟩ : Fin 1600000) := by
  funext a'; apply Fin.ext
  match a' with
  | ⟨0, _⟩ => show 3 + 1 * 0 = 3; omega
  | ⟨1, _⟩ => show pos L n + 1 * t.val = pos L n + t.val; omega

theorem out_emb (n : ℕ) (y : S3200.Idx) (h : pos L n + (y 0).val < 1600000) :
    (outM L n).view.emb y = ix1 (⟨pos L n + (y 0).val, h⟩ : Fin 1600000) := by
  funext a'; apply Fin.ext
  match a' with
  | ⟨0, _⟩ => show pos L n + 1 * (y 0).val = pos L n + (y 0).val; omega

/-- Both lane-copy loops run 200 trips: 200 · 16 = 3200, the whole row. -/
theorem trips2 : k3_t2_loop.trips = 200 := by decide
theorem trips3 : k3_t3_loop.trips = 200 := by decide

/-- After all its trips a lane-copy loop has copied the whole row. -/
theorem lanes_all (a : Memref sig .scVector .vmem S8x3200 .f32) (b : Memref sig .scVector .vmem S25600 .f32)
    (ga : Buf (Elt F) (a.view.loc (thr d L))) (gb : Buf (Elt F) (b.view.loc (thr d L)))
    (h : Lanes d L a b ga gb k3_t2_loop.trips) : Lanes d L a b ga gb 200 := trips2 ▸ h
theorem lanes_all' (a : Memref sig .scVector .vmem S8x3200 .f32) (b : Memref sig .scVector .vmem S25600 .f32)
    (ga : Buf (Elt F) (a.view.loc (thr d L))) (gb : Buf (Elt F) (b.view.loc (thr d L)))
    (h : Lanes d L a b ga gb k3_t3_loop.trips) : Lanes d L a b ga gb 200 := trips3 ▸ h

/-- The write-out of a piece: the first 3200 elements of the flat staging array, which the 200 lane copies filled from
    row 0 of the staging array, which the fetch filled from piece `n` of row 3 of the transposed argument, land at
    piece `n` of the result, at the same positions of the row. -/
theorem out_written (a : Memref sig .scVector .vmem S8x3200 .f32) (b : Memref sig .scVector .vmem S25600 .f32) (n : ℕ)
    (ga : Buf (Elt F) (a.view.loc (thr d L))) (gb : Buf (Elt F) (b.view.loc (thr d L)))
    (f0 : Buf (Elt F) ((outM L n).view.loc (thr d L))) (w : S3200.Idx → Elt F .f32)
    (hw : ∀ y, w y = (stg b).view.read (Elt F) gb y) (hl : Lanes d L a b ga gb 200) (hr : InRow d L fx a ga n) (hv : valid L n) :
    ∀ i ∈ (outM L n).view.set, ((outM L n).view.writes (Elt F) f0 [⟨Rect.whole _, w⟩]) i = Cert.Spec.row 3 fx i := by
  intro i hi
  obtain ⟨y, -, rfl⟩ := Finset.mem_map.mp hi
  have hy : (y 0).val < 3200 := (y 0).isLt
  have hp : pos L n + (y 0).val < 1600000 := by unfold pos; omega
  have e1 : (outM L n).view.writes (Elt F) f0 [⟨Rect.whole _, w⟩] ((outM L n).view.emb y) = w y := by
    have h := View.read_writes_cons_emb (outM L n).view f0 (Rect.whole _) w [] y
    rw [Rect.emb_whole_apply] at h
    exact (cast_eq _ _).symm.trans ((View.read_apply _ _).symm.trans h)
  have e2 : (stg b).view.read (Elt F) gb y = b.view.read (Elt F) gb (ix1 (⟨(y 0).val, by omega⟩ : Fin 25600)) :=
    congrArg (b.view.read (Elt F) gb) (stg_emb y (by omega))
  have e3 : a.view.read (Elt F) ga (ix2 (0 : Fin 8) (⟨(y 0).val, hy⟩ : Fin 3200))
      = (inM L n).view.read (Elt F) fx (ix2 (0 : Fin 1) (⟨(y 0).val, hy⟩ : Fin 3200)) :=
    (congrArg (a.view.read (Elt F) ga) (row_emb ⟨(y 0).val, hy⟩).symm).trans (hr _)
  have e4 : (inM L n).view.read (Elt F) fx (ix2 (0 : Fin 1) (⟨(y 0).val, hy⟩ : Fin 3200))
      = fx (ix2 (3 : Fin 22) (⟨pos L n + (y 0).val, hp⟩ : Fin 1600000)) :=
    ((View.read_apply _ _).trans (cast_eq _ _)).trans (congrArg fx (in_emb L n ⟨(y 0).val, hy⟩ hp))
  have e5 : Cert.Spec.row 3 fx ((outM L n).view.emb y) = fx (ix2 (3 : Fin 22) (⟨pos L n + (y 0).val, hp⟩ : Fin 1600000)) :=
    (congrArg (Cert.Spec.row 3 fx) (out_emb L n y hp)).trans (Cert.Spec.row_apply 3 fx _)
  exact e1.trans ((hw y).trans (e2.trans ((hl _ hy (by omega)).trans (e3.trans (e4.trans e5.symm)))))

end Cert.Proof.TileBVal3

end
-- ==== Proof.TileB3.lean ====
/-
  One vector subcore's task of copy kernel 3 (counting from 0), run symbolically: the two fetch slots and two write-out slots
  between trips of the main loop (what each transfer in flight will hand back, and what the staging buffers hold), the
  invariant of the main loop and of the two lane-copy loops, and the task's run — from the tile's pieces of row 3 of
  the transposed argument and of the result to the same pieces with the result holding the row's elements.
-/
import proofs.«206869_g37898791420194_cont_8to1_b_558_20_alg».proof.Proof.TileB3Defs
import proofs.«206869_g37898791420194_cont_8to1_b_558_20_alg».proof.Proof.TileBVal3
noncomputable section

namespace Cert.Proof.TileB3

open Cert.Kernel Cert.Kernel.Gen Cert.Proof.TileBVal3
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 22) (Elt F) ℕ UU ℕ
local notation "xtW" => (Memref.whole Cert.Kernel.main_v0_scv : Memref Cert.Kernel.sig Kind.scVector Space.hbm Cert.Kernel.S22x1600000 EltTy.f32)
local notation "oW" => (Memref.whole Cert.Kernel.main_v4_scv : Memref Cert.Kernel.sig Kind.scVector Space.hbm Cert.Kernel.S1600000 EltTy.f32)
local notation "a4" => (Memref.whole Cert.Kernel.cc3_scratch0 : Memref Cert.Kernel.sig Kind.scVector Space.vmem Cert.Kernel.S8x3200 EltTy.f32)
local notation "a5" => (Memref.whole Cert.Kernel.cc3_scratch1 : Memref Cert.Kernel.sig Kind.scVector Space.vmem Cert.Kernel.S8x3200 EltTy.f32)
local notation "a6" => (Memref.whole Cert.Kernel.cc3_scratch2 : Memref Cert.Kernel.sig Kind.scVector Space.vmem Cert.Kernel.S25600 EltTy.f32)
local notation "a7" => (Memref.whole Cert.Kernel.cc3_scratch3 : Memref Cert.Kernel.sig Kind.scVector Space.vmem Cert.Kernel.S25600 EltTy.f32)

variable [FloatOps F]

section Tile

variable (d : Dev nD) (L : grid3.Coords)
variable (O : CellTallies nD τ sig (HIx 22)) (W : Waits sig (HIx 22))
variable (fx : Buf (Elt F) ((xtW).view.loc (thr d L)))

/-- Piece `n` of the result at its final contents. -/
abbrev oqPiece (n : ℕ) : sProp 𝕄 := (outM L n).view.loc (thr d L) ↦[(outM L n).view.set]{fullShare} (Cert.Spec.row 3 fx)
theorem oQ_pos {n : ℕ} (v : valid L n) : oQ d L fx n = oqPiece d L fx n := if_pos v
theorem oQ_neg {n : ℕ} (v : ¬ valid L n) : oQ d L fx n = iprop(emp) := if_neg v

/-- A fetch slot, remembering that the staging row it will hand back holds the piece. -/
def inSlotV (a : Memref sig .scVector .vmem S8x3200 .f32) (sm : DmaSem sig) (n : ℕ) : sProp 𝕄 :=
  if valid L n then
    iprop(∃ g, ⌜InRow d L fx a g n⌝ ∗ Transfers.Flight countersEmb (thr d L) (SemLoc.dma sm) (default : HIx 22) NN
      iprop((a.view.loc (thr d L) ↦{fullShare} g) ∗ xtPiece d L fx n))
  else iprop((∃ g, a.view.loc (thr d L) ↦{fullShare} g) ∗ semVal (thr d L, SemLoc.dma sm) 0)

/-- A write-out slot: the piece in flight will come back holding the row's elements. -/
def outSlotV (a : Memref sig .scVector .vmem S25600 .f32) (sm : DmaSem sig) (m : ℕ) : sProp 𝕄 :=
  if 2 ≤ m ∧ valid L (m - 2) then
    iprop(∃ g, Transfers.Flight countersEmb (thr d L) (SemLoc.dma sm) (default : HIx 22) NN
        iprop(oqPiece d L fx (m - 2) ∗ ((stg a).view.loc (thr d L) ↦[(stg a).view.set]{fullShare} g))
      ∗ (a.view.loc (thr d L) ↦[Finset.univ \ (stg a).view.set]{fullShare} g))
  else iprop((∃ g, a.view.loc (thr d L) ↦{fullShare} g) ∗ semVal (thr d L, SemLoc.dma sm) 0)

theorem inSlotV_pos {a : Memref sig .scVector .vmem S8x3200 .f32} {sm : DmaSem sig} {n : ℕ} (v : valid L n) :
    inSlotV d L fx a sm n = iprop(∃ g, ⌜InRow d L fx a g n⌝ ∗ Transfers.Flight countersEmb (thr d L) (SemLoc.dma sm) (default : HIx 22) NN
      iprop((a.view.loc (thr d L) ↦{fullShare} g) ∗ xtPiece d L fx n)) := by unfold inSlotV; rw [if_pos v]
theorem inSlotV_neg {a : Memref sig .scVector .vmem S8x3200 .f32} {sm : DmaSem sig} {n : ℕ} (v : ¬ valid L n) :
    inSlotV d L fx a sm n = iprop((∃ g, a.view.loc (thr d L) ↦{fullShare} g) ∗ semVal (thr d L, SemLoc.dma sm) 0) := by
  unfold inSlotV; rw [if_neg v]
theorem outSlotV_pos {a : Memref sig .scVector .vmem S25600 .f32} {sm : DmaSem sig} {m : ℕ} (h : 2 ≤ m ∧ valid L (m - 2)) :
    outSlotV d L fx a sm m = iprop(∃ g, Transfers.Flight countersEmb (thr d L) (SemLoc.dma sm) (default : HIx 22) NN
        iprop(oqPiece d L fx (m - 2) ∗ ((stg a).view.loc (thr d L) ↦[(stg a).view.set]{fullShare} g))
      ∗ (a.view.loc (thr d L) ↦[Finset.univ \ (stg a).view.set]{fullShare} g)) := by unfold outSlotV; rw [if_pos h]
theorem outSlotV_neg {a : Memref sig .scVector .vmem S25600 .f32} {sm : DmaSem sig} {m : ℕ} (h : ¬ (2 ≤ m ∧ valid L (m - 2))) :
    outSlotV d L fx a sm m = iprop((∃ g, a.view.loc (thr d L) ↦{fullShare} g) ∗ semVal (thr d L, SemLoc.dma sm) 0) := by
  unfold outSlotV; rw [if_neg h]

/-- A fetch just issued: the staging row will hold what the transfer reads, which is the piece. -/
theorem fl_inV {off : Fin 2 → ℕ} {n : ℕ} (h : off = ![3, pos L n]) (p : ∀ a, off a + S1x3200.size a ≤ S22x1600000.size a) (v : valid L n)
    (a : Memref sig .scVector .vmem S8x3200 .f32) (sm : DmaSem sig) :
    (iprop(∃ (gold : Buf (Elt F) (a.view.loc (thr d L))) (w : S1x3200.Idx → Elt F .f32),
        ⌜∀ y, w y = ((xtW).slice (Rect.unit (s := S22x1600000) off S1x3200.size p) (fun _ => rfl)).view.read (Elt F) fx y⌝
        ∗ Transfers.Flight countersEmb (thr d L) (SemLoc.dma sm) (default : HIx 22) NN
          iprop((a.view.loc (thr d L) ↦{fullShare} a.view.writes (Elt F) gold [⟨rowRect, w⟩])
            ∗ (((xtW).slice (Rect.unit (s := S22x1600000) off S1x3200.size p) (fun _ => rfl)).view.loc (thr d L)
                ↦[((xtW).slice (Rect.unit (s := S22x1600000) off S1x3200.size p) (fun _ => rfl)).view.set]{fullShare} fx))) : sProp 𝕄)
      ⊢ inSlotV d L fx a sm n := by
  subst h
  rw [inSlotV_pos d L fx v]
  iintro ⟨%gold, %w, %hw, H⟩
  iexists _
  isplitr
  · ipureintro; exact inRow_fetch d L fx a gold w n hw
  · iexact H

set_option maxHeartbeats 4000000 in
/-- A write-out just issued from a flat staging buffer whose first 3200 elements are the staging row, itself piece
    `n` of the argument row: the piece of the result will hold the row's elements. -/
theorem fl_outV {off : Fin 1 → ℕ} {n : ℕ} (h : off = ![pos L n]) (p : ∀ a, off a + S3200.size a ≤ S1600000.size a) (v : valid L n)
    (ar : Memref sig .scVector .vmem S8x3200 .f32) (a : Memref sig .scVector .vmem S25600 .f32) (sm : DmaSem sig)
    (f0 : Buf (Elt F) ((oW).view.loc (thr d L))) (ga : Buf (Elt F) (ar.view.loc (thr d L))) (gb : Buf (Elt F) (a.view.loc (thr d L)))
    (hl : Lanes d L ar a ga gb 200) (hr : InRow d L fx ar ga n) :
    (iprop(∃ (w : S3200.Idx → Elt F .f32),
        ⌜∀ y, w y = (stg a).view.read (Elt F) gb y⌝
        ∗ Transfers.Flight countersEmb (thr d L) (SemLoc.dma sm) (default : HIx 22) NN
          iprop((((oW).slice (Rect.unit (s := S1600000) off S3200.size p) (fun _ => rfl)).view.loc (thr d L)
                ↦[((oW).slice (Rect.unit (s := S1600000) off S3200.size p) (fun _ => rfl)).view.set]{fullShare}
                  (((oW).slice (Rect.unit (s := S1600000) off S3200.size p) (fun _ => rfl)).view.writes (Elt F) f0 [⟨Rect.whole _, w⟩]))
            ∗ ((stg a).view.loc (thr d L) ↦[(stg a).view.set]{fullShare} gb))
        ∗ (a.view.loc (thr d L) ↦[Finset.univ \ (stg a).view.set]{fullShare} gb)) : sProp 𝕄)
      ⊢ outSlotV d L fx a sm (n + 2) := by
  subst h
  rw [outSlotV_pos d L fx (m := n + 2) ⟨by omega, by simpa using v⟩]
  iintro ⟨%w, %hw, H, R⟩
  have hD : (iprop(((outM L n).view.loc (thr d L) ↦[(outM L n).view.set]{fullShare} ((outM L n).view.writes (Elt F) f0 [⟨Rect.whole _, w⟩]))
          ∗ ((stg a).view.loc (thr d L) ↦[(stg a).view.set]{fullShare} gb)) : sProp 𝕄)
      ⊢ iprop(oqPiece d L fx (n + 2 - 2) ∗ ((stg a).view.loc (thr d L) ↦[(stg a).view.set]{fullShare} gb)) := by
    rw [Nat.add_sub_cancel]
    have e : (((outM L n).view.loc (thr d L) ↦[(outM L n).view.set]{fullShare} ((outM L n).view.writes (Elt F) f0 [⟨Rect.whole _, w⟩])) : sProp 𝕄)
        = oqPiece d L fx n := pointsTo_congr (out_written d L fx ar a n ga gb f0 w hw hl hr v)
    iintro ⟨H1, H2⟩
    isplitl [H1]
    · iapply (Entails.of_eq e); iexact H1
    · iexact H2
  iexists gb
  isplitl [H]
  · iapply (Transfers.Flight_mono countersEmb (thr d L) hD); iexact H
  · iexact R

/-- The result pieces outside the slots before trip `t`: those already written hold the row, the others some contents. -/
def oMix (t n : ℕ) : sProp 𝕄 := if n + 2 < 2 * t then oQ d L fx n else oP (F := F) d L n
theorem oMix_lt {t n : ℕ} (h : n + 2 < 2 * t) : oMix d L fx t n = oQ d L fx n := if_pos h
theorem oMix_ge {t n : ℕ} (h : ¬ n + 2 < 2 * t) : oMix d L fx t n = oP (F := F) d L n := if_neg h
theorem oMix_core (k : ℕ) : bigSep (oCore k) (oMix d L fx k) = bigSep (oCore k) (oMix d L fx (k + 1)) :=
  bigSep_congr fun n hn => by
    have hn' : n + 2 ≠ 2 * k ∧ n + 2 ≠ 2 * k + 1 ∧ n ≠ 2 * k ∧ n ≠ 2 * k + 1 := by
      simp only [oCore, Finset.mem_filter, Finset.mem_range] at hn; exact hn.2
    by_cases h : n + 2 < 2 * k
    · rw [oMix_lt d L fx h, oMix_lt d L fx (by omega)]
    · rw [oMix_ge d L fx h, oMix_ge d L fx (by omega)]
theorem oMix_zero : bigSep (oSet 0) (oMix d L fx 0) = bigSep (Finset.range 18) (oP (F := F) d L) := by
  rw [oSet_zero]; exact bigSep_congr fun n _ => oMix_ge d L fx (by omega)
theorem oMix_end : bigSep (oSet 8) (oMix d L fx 8) = bigSep (oSet 8) (oQ d L fx) :=
  bigSep_congr fun n hn => by
    have hn' : n < 18 ∧ n + 2 ≠ 16 ∧ n + 2 ≠ 17 := by simpa only [oSet, Finset.mem_filter, Finset.mem_range] using hn
    by_cases h : n + 2 < 2 * 8
    · exact oMix_lt d L fx h
    · rw [oMix_ge d L fx h, oP_neg (F := F) d L (by unfold valid; omega), oQ_neg d L fx (by unfold valid; omega)]

/-- The lane-copy loops: before trip `j` the first 16·j elements of the flat staging buffer are the staging row's. -/
def laneV0 (g4 : Buf (Elt F) ((a4).view.loc (thr d L))) (j : ℕ) (_ : PUnit) : sProp 𝕄 :=
  iprop(((a4).view.loc (thr d L) ↦{fullShare} g4) ∗ (∃ g, ((a6).view.loc (thr d L) ↦{fullShare} g) ∗ ⌜Lanes d L a4 a6 g4 g j⌝))
def laneV1 (g5 : Buf (Elt F) ((a5).view.loc (thr d L))) (j : ℕ) (_ : PUnit) : sProp 𝕄 :=
  iprop(((a5).view.loc (thr d L) ↦{fullShare} g5) ∗ (∃ g, ((a7).view.loc (thr d L) ↦{fullShare} g) ∗ ⌜Lanes d L a5 a7 g5 g j⌝))

def invV (t : ℕ) (_ : PUnit) : sProp 𝕄 :=
  iprop(Transfers.MayWaits (thr d L) (none : HIx 22) O
    ∗ (∃ W', ⌜∀ p ∈ W', p ∈ W ∨ p.2 = none⌝ ∗ owes (thr d L) O W')
    ∗ bigSep (xSet t) (xP d L fx) ∗ bigSep (oSet t) (oMix d L fx t)
    ∗ inSlotV d L fx a4 cc3_scratch4.sem (2 * t) ∗ outSlotV d L fx a6 cc3_scratch6.sem (2 * t)
    ∗ inSlotV d L fx a5 cc3_scratch5.sem (2 * t + 1) ∗ outSlotV d L fx a7 cc3_scratch7.sem (2 * t + 1))

/-- After the last trip nothing of the argument row is in a slot: the tile holds all its pieces. -/
theorem xRange_end : bigSep (xSet 8) (xP d L fx) ⊢ bigSep (Finset.range 18) (xP d L fx) := by
  rw [two_out (s := Finset.range 18) (a := 16) (b := 17) (by decide) (by decide) (by decide),
    show ((Finset.range 18).erase 16).erase 17 = xSet 8 by decide]
  iintro H
  isplitr; · iapply (Entails.of_eq (xP_neg d L fx (n := 16) (by unfold valid; omega)).symm); iempintro
  isplitr; · iapply (Entails.of_eq (xP_neg d L fx (n := 17) (by unfold valid; omega)).symm); iempintro
  iexact H
omit [FloatOps F] in
theorem oRange_end (Φ : ℕ → sProp 𝕄) : bigSep (Finset.range 18) Φ = iprop(Φ 14 ∗ Φ 15 ∗ bigSep (oSet 8) Φ) := by
  rw [two_out (s := Finset.range 18) (a := 14) (b := 15) (by decide) (by decide) (by decide),
    show ((Finset.range 18).erase 14).erase 15 = oSet 8 by decide]

/-- What the run starts from and ends with, beside an untouched rest `R`. -/
def runPre (R : sProp 𝕄) : sProp 𝕄 :=
    iprop(Transfers.MayWaits (thr d L) (none : HIx 22) O ∗ owes (thr d L) O W
        ∗ bigSep (Finset.range 18) (xP d L fx) ∗ bigSep (Finset.range 18) (oP (F := F) d L)
        ∗ (∃ g, (a4).view.loc (thr d L) ↦{fullShare} g) ∗ (∃ g, (a5).view.loc (thr d L) ↦{fullShare} g)
        ∗ (∃ g, (a6).view.loc (thr d L) ↦{fullShare} g) ∗ (∃ g, (a7).view.loc (thr d L) ↦{fullShare} g)
        ∗ semVal (thr d L, SemLoc.dma cc3_scratch4.sem) 0 ∗ semVal (thr d L, SemLoc.dma cc3_scratch5.sem) 0
        ∗ semVal (thr d L, SemLoc.dma cc3_scratch6.sem) 0 ∗ semVal (thr d L, SemLoc.dma cc3_scratch7.sem) 0 ∗ R)
def runPost (R : sProp 𝕄) : sProp 𝕄 :=
    iprop(bigSep (Finset.range 18) (xP d L fx) ∗ bigSep (Finset.range 18) (oQ d L fx)
            ∗ (∃ g, (a4).view.loc (thr d L) ↦{fullShare} g) ∗ (∃ g, (a5).view.loc (thr d L) ↦{fullShare} g)
            ∗ (∃ g, (a6).view.loc (thr d L) ↦{fullShare} g) ∗ (∃ g, (a7).view.loc (thr d L) ↦{fullShare} g)
            ∗ semVal (thr d L, SemLoc.dma cc3_scratch4.sem) 0 ∗ semVal (thr d L, SemLoc.dma cc3_scratch5.sem) 0
            ∗ semVal (thr d L, SemLoc.dma cc3_scratch6.sem) 0 ∗ semVal (thr d L, SemLoc.dma cc3_scratch7.sem) 0
            ∗ (∃ W', ⌜∀ p ∈ W', p ∈ W ∨ p.2 = none⌝ ∗ owes (thr d L) O W') ∗ R)

set_option maxHeartbeats 16000000 in
/-- The task's run: from its pieces of the argument row and of the result, the four staging buffers and the four
    semaphores at zero, to the same with every piece of the result holding the row's elements. -/
theorem tile_run (R : sProp 𝕄) :
    runPre d L O W fx R
      ⊢ wp frame (wpE (defs₀ (F := F)) 𝒱₀ (thr d L) none) Set.univ
          (cc3_sc_group L xtW (Memref.isWhole_whole _) oW (Memref.isWhole_whole _) a4 (Memref.isWhole_whole _) a5 (Memref.isWhole_whole _)
            a6 (Memref.isWhole_whole _) a7 (Memref.isWhole_whole _) cc3_scratch4 cc3_scratch5 cc3_scratch6 cc3_scratch7)
          fun _ => runPost d L O W fx R := by
  unfold runPre runPost
  have v0 : valid L 0 := Or.inl (by omega)
  have v1 : valid L 1 := Or.inl (by omega)
  have k3_h7 : k3_cond7 L = 1#1 := cond7_iff L
  iintro ⟨#Hmw, HO, HX, HOut, ⟨%g4, H4⟩, ⟨%g5, H5⟩, ⟨%g6, H6⟩, ⟨%g7, H7⟩, Hs8, Hs9, Hs10, Hs11, HR⟩
  ihave HX := (Entails.of_eq (xRange_split d L fx v0 v1)) $$ HX
  icases HX with ⟨X0, X1, HX⟩
  ihave X0 := (Entails.of_eq (in_congr d L (off_in0 L v0).symm (in_inb L _) (k3_off1_inb L 0) fx)) $$ X0
  ihave X1 := (Entails.of_eq (in_congr d L (off_in1 L v1).symm (in_inb L _) (k3_off1_inb L 1) fx)) $$ X1
  sl_unfold [cc3_sc_group]
  sl_exec
  ihave S8 := (fl_inV d L fx (off_in0 L v0) (k3_off1_inb L 0) v0 a4 cc3_scratch4.sem) $$ [Hs8]
  · iexists _, _
    isplitr
    rotate_left
    · iexact Hs8
    ipureintro; intro y; rfl
  ihave S9 := (fl_inV d L fx (off_in1 L v1) (k3_off1_inb L 1) v1 a5 cc3_scratch5.sem) $$ [Hs9]
  · iexists _, _
    isplitr
    rotate_left
    · iexact Hs9
    ipureintro; intro y; rfl
  sl_for (invV d L O W fx) $$ [HO HX HOut S8 S9 H6 H7 Hs10 Hs11]
  case region =>
    intro (k : Fin k3_t1_loop.trips) acc
    have hk : k.val < 8 := Nat.lt_of_lt_of_eq k.isLt trips1
    unfold invV
    iintro ⟨#Hmw, ⟨%W', %hW', HO⟩, HX, HOut, S8, S10, S9, S11⟩
    by_cases hk1 : 1 ≤ k.val
    · by_cases v3 : valid L (2 * k.val + 3)
      · -- the generic trip: both drains, both pieces worked, both next fetches issued
        have hk6 : k.val ≤ 6 := by unfold valid at v3; omega
        have k3_h1 : k3_cond1 k = 1#1 := (cond1_iff k).mpr (by omega)
        have k3_h2 : k3_cond2 L k = 1#1 := cond2_iff L k
        have k3_h3 : k3_cond3 L k = 1#1 := (cond3_iff L k).mpr (by omega)
        have k3_h4 : k3_cond4 k = 1#1 := (cond4_iff k).mpr (by omega)
        have k3_h5 : k3_cond5 L k = 1#1 := (cond5_iff L k).mpr (by first | (unfold valid big at *; omega) | (unfold big at *; omega) | omega)
        have k3_h6 : k3_cond6 L k = 1#1 := (cond6_iff L k).mpr (by first | (unfold valid big at *; omega) | (unfold big at *; omega) | omega)
        have v0 : valid L (2 * k.val) := by unfold valid big at *; omega
        have v1 : valid L (2 * k.val + 1) := by unfold valid big at *; omega
        have v2 : valid L (2 * k.val + 2) := by unfold valid big at *; omega
        have v3' : valid L (2 * k.val + 3) := by unfold valid big at *; omega
        have hm0 : 2 ≤ 2 * k.val ∧ valid L (2 * k.val - 2) := ⟨by omega, by unfold valid big at *; omega⟩
        have hm1 : 2 ≤ 2 * k.val + 1 ∧ valid L (2 * k.val + 1 - 2) := ⟨by omega, by unfold valid big at *; omega⟩
        ihave S8 := (Entails.of_eq (inSlotV_pos d L fx v0)) $$ S8
        icases S8 with ⟨%g4, %hin4, F8⟩
        ihave S9 := (Entails.of_eq (inSlotV_pos d L fx v1)) $$ S9
        icases S9 with ⟨%g5, %hin5, F9⟩
        ihave S10 := (Entails.of_eq (outSlotV_pos d L fx hm0)) $$ S10
        icases S10 with ⟨%g6, F10, R6⟩
        ihave S11 := (Entails.of_eq (outSlotV_pos d L fx hm1)) $$ S11
        icases S11 with ⟨%g7, F11, R7⟩
        ihave HX := (Entails.of_eq (xSet_out (xP d L fx) k.val hk)) $$ HX
        icases HX with ⟨X2, X3, HX⟩
        ihave X2 := (Entails.of_eq (xP_pos d L fx v2)) $$ X2
        ihave X2 := (Entails.of_eq (in_congr d L (off_6 L k v2).symm (in_inb L _) (k3_off6_inb L k k3_h3) fx)) $$ X2
        ihave X3 := (Entails.of_eq (xP_pos d L fx v3')) $$ X3
        ihave X3 := (Entails.of_eq (in_congr d L (off_11 L k v3').symm (in_inb L _) (k3_off11_inb L k k3_h6) fx)) $$ X3
        ihave HOut := (Entails.of_eq (oSet_out (oMix d L fx k.val) k.val hk)) $$ HOut
        icases HOut with ⟨Y0, Y1, HOut⟩
        ihave Y0 := (Entails.of_eq ((oMix_ge d L fx (t := k.val) (n := 2 * k.val) (by omega)).trans (oP_pos (F := F) d L v0))) $$ Y0
        icases Y0 with ⟨%f0, Y0⟩
        ihave Y0 := (Entails.of_eq (out_congr d L (off_5 L k v0).symm (out_inb L _) (k3_off5_inb L k k3_h2) f0)) $$ Y0
        ihave Y1 := (Entails.of_eq ((oMix_ge d L fx (t := k.val) (n := 2 * k.val + 1) (by omega)).trans (oP_pos (F := F) d L v1))) $$ Y1
        icases Y1 with ⟨%f1, Y1⟩
        ihave Y1 := (Entails.of_eq (out_congr d L (off_10 L k v1).symm (out_inb L _) (k3_off10_inb L k k3_h5) f1)) $$ Y1
        sl_exec
        sl_for (laneV0 d L g4) $$ [F8_dst R6]
        case region =>
          intro (j : Fin k3_t2_loop.trips) _
          unfold laneV0
          iintro ⟨HA, %g, HB, %hl⟩
          sl_exec
          sl_step
          isplitl [HA]; · iexact HA
          iexists _; isplitl [HB]; · iexact HB
          ipureintro; exact lanes_step d L a4 a6 g4 g j _ _ hl
        · unfold laneV0
          isplitl [F8_dst]; · iexact F8_dst
          iexists _; isplitl [R6]; · iexact R6
          ipureintro; exact lanes_zero d L a4 a6 g4 _
        iintro %_ HI
        unfold laneV0
        icases HI with ⟨H4, %g6', H6, %hl6⟩
        have hl6 : Lanes d L a4 a6 g4 g6' 200 := Eq.mp (congrArg (Lanes d L a4 a6 g4 g6') trips2) hl6
        sl_exec
        sl_for (laneV1 d L g5) $$ [F9_dst R7]
        case region =>
          intro (j : Fin k3_t3_loop.trips) _
          unfold laneV1
          iintro ⟨HA, %g, HB, %hl⟩
          sl_exec
          sl_step
          isplitl [HA]; · iexact HA
          iexists _; isplitl [HB]; · iexact HB
          ipureintro; exact lanes_step' d L a5 a7 g5 g j _ _ hl
        · unfold laneV1
          isplitl [F9_dst]; · iexact F9_dst
          iexists _; isplitl [R7]; · iexact R7
          ipureintro; exact lanes_zero d L a5 a7 g5 _
        iintro %_ HI
        unfold laneV1
        icases HI with ⟨H5, %g7', H7, %hl7⟩
        have hl7 : Lanes d L a5 a7 g5 g7' 200 := Eq.mp (congrArg (Lanes d L a5 a7 g5 g7') trips3) hl7
        sl_exec
        sl_step
        isplitr; · iexact Hmw
        isplitl [HO]
        · iexists _; isplitr
          rotate_left
          · iexact HO
          ipureintro; intro p hp
          rcases Finset.mem_insert.mp hp with rfl | hp
          · exact .inr rfl
          rcases Finset.mem_insert.mp hp with rfl | hp
          · exact .inr rfl
          rcases Finset.mem_insert.mp hp with rfl | hp
          · exact .inr rfl
          rcases Finset.mem_insert.mp hp with rfl | hp
          · exact .inr rfl
          exact hW' p hp
        isplitl [HX F8_src F9_src]
        · iapply (Entails.of_eq (xSet_in (xP d L fx) k.val hk).symm)
          isplitl [F8_src]; · iapply (Entails.of_eq (xP_pos d L fx v0).symm); iexact F8_src
          isplitl [F9_src]; · iapply (Entails.of_eq (xP_pos d L fx v1).symm); iexact F9_src
          iexact HX
        isplitl [HOut F10_dst F11_dst]
        · iapply (Entails.of_eq (oSet_in (oMix d L fx (k.val + 1)) k.val hk (by omega)).symm)
          isplitl [F10_dst]; · iapply (Entails.of_eq ((oMix_lt d L fx (t := k.val + 1) (n := 2 * k.val - 2) (by omega)).trans (oQ_pos d L fx hm0.2)).symm); iexact F10_dst
          isplitl [F11_dst]
          · iapply (Entails.of_eq ((oMix_lt d L fx (t := k.val + 1) (n := 2 * k.val - 1) (by omega)).trans (oQ_pos d L fx (n := 2 * k.val - 1) (by have := hm1.2; rwa [show 2 * k.val + 1 - 2 = 2 * k.val - 1 by omega] at this))).symm)
            iapply (Entails.of_eq (congrArg (oqPiece d L fx) (show 2 * k.val + 1 - 2 = 2 * k.val - 1 by omega))); iexact F11_dst
          iapply (Entails.of_eq (oMix_core d L fx k.val)); iexact HOut
        isplitl [F8]
        · iapply (Entails.of_eq (congrArg (inSlotV d L fx a4 cc3_scratch4.sem) (show 2 * k.val + 2 = 2 * (k.val + 1) by ring)))
          iapply (fl_inV d L fx (off_6 L k v2) (k3_off6_inb L k k3_h3) v2 a4 cc3_scratch4.sem); iexists _, _
          isplitr
          rotate_left
          · iexact F8
          ipureintro; intro y; rfl
        isplitl [F10 H6]
        · iapply (Entails.of_eq (congrArg (outSlotV d L fx a6 cc3_scratch6.sem) (show 2 * k.val + 2 = 2 * (k.val + 1) by ring)))
          iapply (fl_outV d L fx (off_5 L k v0) (k3_off5_inb L k k3_h2) v0 a4 a6 cc3_scratch6.sem f0 g4 g6' hl6 hin4); iexists _
          isplitr
          rotate_left
          · isplitl [F10]; · iexact F10
            iexact H6
          ipureintro; intro y; rfl
        isplitl [F9]
        · iapply (Entails.of_eq (congrArg (inSlotV d L fx a5 cc3_scratch5.sem) (show 2 * k.val + 3 = 2 * (k.val + 1) + 1 by ring)))
          iapply (fl_inV d L fx (off_11 L k v3') (k3_off11_inb L k k3_h6) v3' a5 cc3_scratch5.sem); iexists _, _
          isplitr
          rotate_left
          · iexact F9
          ipureintro; intro y; rfl
        · iapply (Entails.of_eq (congrArg (outSlotV d L fx a7 cc3_scratch7.sem) (show 2 * k.val + 1 + 2 = 2 * (k.val + 1) + 1 by ring)))
          iapply (fl_outV d L fx (off_10 L k v1) (k3_off10_inb L k k3_h5) v1 a5 a7 cc3_scratch7.sem f1 g5 g7' hl7 hin5); iexists _
          isplitr
          rotate_left
          · isplitl [F11]; · iexact F11
            iexact H7
          ipureintro; intro y; rfl
      · by_cases h6 : k.val = 6
        · have hb : ¬ big L := fun hb => v3 (Or.inr ⟨by omega, hb⟩)
          -- trip 6 of a tile with fifteen pieces: no sixteenth piece to fetch
          have k3_h1 : k3_cond1 k = 1#1 := (cond1_iff k).mpr (by omega)
          have k3_h2 : k3_cond2 L k = 1#1 := cond2_iff L k
          have k3_h3 : k3_cond3 L k = 1#1 := (cond3_iff L k).mpr (by omega)
          have k3_h4 : k3_cond4 k = 1#1 := (cond4_iff k).mpr (by omega)
          have k3_h5 : k3_cond5 L k = 1#1 := (cond5_iff L k).mpr (by first | (unfold valid big at *; omega) | (unfold big at *; omega) | omega)
          have k3_h6 : ¬ k3_cond6 L k = 1#1 := fun h => absurd ((cond6_iff L k).mp h) (by first | (unfold valid big at *; omega) | (unfold big at *; omega) | omega)
          have v0 : valid L (2 * k.val) := by unfold valid big at *; omega
          have v1 : valid L (2 * k.val + 1) := by unfold valid big at *; omega
          have v2 : valid L (2 * k.val + 2) := by unfold valid big at *; omega
          have v3' : ¬ valid L (2 * k.val + 3) := by unfold valid big at *; omega
          have hm0 : 2 ≤ 2 * k.val ∧ valid L (2 * k.val - 2) := ⟨by omega, by unfold valid big at *; omega⟩
          have hm1 : 2 ≤ 2 * k.val + 1 ∧ valid L (2 * k.val + 1 - 2) := ⟨by omega, by unfold valid big at *; omega⟩
          ihave S8 := (Entails.of_eq (inSlotV_pos d L fx v0)) $$ S8
          icases S8 with ⟨%g4, %hin4, F8⟩
          ihave S9 := (Entails.of_eq (inSlotV_pos d L fx v1)) $$ S9
          icases S9 with ⟨%g5, %hin5, F9⟩
          ihave S10 := (Entails.of_eq (outSlotV_pos d L fx hm0)) $$ S10
          icases S10 with ⟨%g6, F10, R6⟩
          ihave S11 := (Entails.of_eq (outSlotV_pos d L fx hm1)) $$ S11
          icases S11 with ⟨%g7, F11, R7⟩
          ihave HX := (Entails.of_eq (xSet_out (xP d L fx) k.val hk)) $$ HX
          icases HX with ⟨X2, -, HX⟩
          ihave X2 := (Entails.of_eq (xP_pos d L fx v2)) $$ X2
          ihave X2 := (Entails.of_eq (in_congr d L (off_6 L k v2).symm (in_inb L _) (k3_off6_inb L k k3_h3) fx)) $$ X2
          ihave HOut := (Entails.of_eq (oSet_out (oMix d L fx k.val) k.val hk)) $$ HOut
          icases HOut with ⟨Y0, Y1, HOut⟩
          ihave Y0 := (Entails.of_eq ((oMix_ge d L fx (t := k.val) (n := 2 * k.val) (by omega)).trans (oP_pos (F := F) d L v0))) $$ Y0
          icases Y0 with ⟨%f0, Y0⟩
          ihave Y0 := (Entails.of_eq (out_congr d L (off_5 L k v0).symm (out_inb L _) (k3_off5_inb L k k3_h2) f0)) $$ Y0
          ihave Y1 := (Entails.of_eq ((oMix_ge d L fx (t := k.val) (n := 2 * k.val + 1) (by omega)).trans (oP_pos (F := F) d L v1))) $$ Y1
          icases Y1 with ⟨%f1, Y1⟩
          ihave Y1 := (Entails.of_eq (out_congr d L (off_10 L k v1).symm (out_inb L _) (k3_off10_inb L k k3_h5) f1)) $$ Y1
          sl_exec
          sl_for (laneV0 d L g4) $$ [F8_dst R6]
          case region =>
            intro (j : Fin k3_t2_loop.trips) _
            unfold laneV0
            iintro ⟨HA, %g, HB, %hl⟩
            sl_exec
            sl_step
            isplitl [HA]; · iexact HA
            iexists _; isplitl [HB]; · iexact HB
            ipureintro; exact lanes_step d L a4 a6 g4 g j _ _ hl
          · unfold laneV0
            isplitl [F8_dst]; · iexact F8_dst
            iexists _; isplitl [R6]; · iexact R6
            ipureintro; exact lanes_zero d L a4 a6 g4 _
          iintro %_ HI
          unfold laneV0
          icases HI with ⟨H4, %g6', H6, %hl6⟩
          have hl6 : Lanes d L a4 a6 g4 g6' 200 := Eq.mp (congrArg (Lanes d L a4 a6 g4 g6') trips2) hl6
          sl_exec
          sl_for (laneV1 d L g5) $$ [F9_dst R7]
          case region =>
            intro (j : Fin k3_t3_loop.trips) _
            unfold laneV1
            iintro ⟨HA, %g, HB, %hl⟩
            sl_exec
            sl_step
            isplitl [HA]; · iexact HA
            iexists _; isplitl [HB]; · iexact HB
            ipureintro; exact lanes_step' d L a5 a7 g5 g j _ _ hl
          · unfold laneV1
            isplitl [F9_dst]; · iexact F9_dst
            iexists _; isplitl [R7]; · iexact R7
            ipureintro; exact lanes_zero d L a5 a7 g5 _
          iintro %_ HI
          unfold laneV1
          icases HI with ⟨H5, %g7', H7, %hl7⟩
          have hl7 : Lanes d L a5 a7 g5 g7' 200 := Eq.mp (congrArg (Lanes d L a5 a7 g5 g7') trips3) hl7
          sl_exec
          sl_step
          isplitr; · iexact Hmw
          isplitl [HO]
          · iexists _; isplitr
            rotate_left
            · iexact HO
            ipureintro; intro p hp
            rcases Finset.mem_insert.mp hp with rfl | hp
            · exact .inr rfl
            rcases Finset.mem_insert.mp hp with rfl | hp
            · exact .inr rfl
            rcases Finset.mem_insert.mp hp with rfl | hp
            · exact .inr rfl
            rcases Finset.mem_insert.mp hp with rfl | hp
            · exact .inr rfl
            exact hW' p hp
          isplitl [HX F8_src F9_src]
          · iapply (Entails.of_eq (xSet_in (xP d L fx) k.val hk).symm)
            isplitl [F8_src]; · iapply (Entails.of_eq (xP_pos d L fx v0).symm); iexact F8_src
            isplitl [F9_src]; · iapply (Entails.of_eq (xP_pos d L fx v1).symm); iexact F9_src
            iexact HX
          isplitl [HOut F10_dst F11_dst]
          · iapply (Entails.of_eq (oSet_in (oMix d L fx (k.val + 1)) k.val hk (by omega)).symm)
            isplitl [F10_dst]; · iapply (Entails.of_eq ((oMix_lt d L fx (t := k.val + 1) (n := 2 * k.val - 2) (by omega)).trans (oQ_pos d L fx hm0.2)).symm); iexact F10_dst
            isplitl [F11_dst]
            · iapply (Entails.of_eq ((oMix_lt d L fx (t := k.val + 1) (n := 2 * k.val - 1) (by omega)).trans (oQ_pos d L fx (n := 2 * k.val - 1) (by have := hm1.2; rwa [show 2 * k.val + 1 - 2 = 2 * k.val - 1 by omega] at this))).symm)
              iapply (Entails.of_eq (congrArg (oqPiece d L fx) (show 2 * k.val + 1 - 2 = 2 * k.val - 1 by omega))); iexact F11_dst
            iapply (Entails.of_eq (oMix_core d L fx k.val)); iexact HOut
          isplitl [F8]
          · iapply (Entails.of_eq (congrArg (inSlotV d L fx a4 cc3_scratch4.sem) (show 2 * k.val + 2 = 2 * (k.val + 1) by ring)))
            iapply (fl_inV d L fx (off_6 L k v2) (k3_off6_inb L k k3_h3) v2 a4 cc3_scratch4.sem); iexists _, _
            isplitr
            rotate_left
            · iexact F8
            ipureintro; intro y; rfl
          isplitl [F10 H6]
          · iapply (Entails.of_eq (congrArg (outSlotV d L fx a6 cc3_scratch6.sem) (show 2 * k.val + 2 = 2 * (k.val + 1) by ring)))
            iapply (fl_outV d L fx (off_5 L k v0) (k3_off5_inb L k k3_h2) v0 a4 a6 cc3_scratch6.sem f0 g4 g6' hl6 hin4); iexists _
            isplitr
            rotate_left
            · isplitl [F10]; · iexact F10
              iexact H6
            ipureintro; intro y; rfl
          isplitl [H5 F9]
          · iapply (Entails.of_eq (congrArg (inSlotV d L fx a5 cc3_scratch5.sem) (show 2 * k.val + 3 = 2 * (k.val + 1) + 1 by ring)))
            iapply (Entails.of_eq (inSlotV_neg d L fx v3').symm)
            isplitl [H5]; · iexists _; iexact H5
            iexact F9
          · iapply (Entails.of_eq (congrArg (outSlotV d L fx a7 cc3_scratch7.sem) (show 2 * k.val + 1 + 2 = 2 * (k.val + 1) + 1 by ring)))
            iapply (fl_outV d L fx (off_10 L k v1) (k3_off10_inb L k k3_h5) v1 a5 a7 cc3_scratch7.sem f1 g5 g7' hl7 hin5); iexists _
            isplitr
            rotate_left
            · isplitl [F11]; · iexact F11
              iexact H7
            ipureintro; intro y; rfl
        · have h7 : k.val = 7 := by unfold valid at v3; omega
          by_cases hb : big L
          · -- the last trip of a tile with sixteen pieces: nothing more to fetch
            have k3_h1 : k3_cond1 k = 1#1 := (cond1_iff k).mpr (by omega)
            have k3_h2 : k3_cond2 L k = 1#1 := cond2_iff L k
            have k3_h3 : ¬ k3_cond3 L k = 1#1 := fun h => absurd ((cond3_iff L k).mp h) (by omega)
            have k3_h4 : k3_cond4 k = 1#1 := (cond4_iff k).mpr (by omega)
            have k3_h5 : k3_cond5 L k = 1#1 := (cond5_iff L k).mpr (by first | (unfold valid big at *; omega) | (unfold big at *; omega) | omega)
            have k3_h6 : ¬ k3_cond6 L k = 1#1 := fun h => absurd ((cond6_iff L k).mp h) (by first | (unfold valid big at *; omega) | (unfold big at *; omega) | omega)
            have v0 : valid L (2 * k.val) := by unfold valid big at *; omega
            have v1 : valid L (2 * k.val + 1) := by unfold valid big at *; omega
            have v2 : ¬ valid L (2 * k.val + 2) := by unfold valid big at *; omega
            have v3' : ¬ valid L (2 * k.val + 3) := by unfold valid big at *; omega
            have hm0 : 2 ≤ 2 * k.val ∧ valid L (2 * k.val - 2) := ⟨by omega, by unfold valid big at *; omega⟩
            have hm1 : 2 ≤ 2 * k.val + 1 ∧ valid L (2 * k.val + 1 - 2) := ⟨by omega, by unfold valid big at *; omega⟩
            ihave S8 := (Entails.of_eq (inSlotV_pos d L fx v0)) $$ S8
            icases S8 with ⟨%g4, %hin4, F8⟩
            ihave S9 := (Entails.of_eq (inSlotV_pos d L fx v1)) $$ S9
            icases S9 with ⟨%g5, %hin5, F9⟩
            ihave S10 := (Entails.of_eq (outSlotV_pos d L fx hm0)) $$ S10
            icases S10 with ⟨%g6, F10, R6⟩
            ihave S11 := (Entails.of_eq (outSlotV_pos d L fx hm1)) $$ S11
            icases S11 with ⟨%g7, F11, R7⟩
            ihave HX := (Entails.of_eq (xSet_out (xP d L fx) k.val hk)) $$ HX
            icases HX with ⟨-, -, HX⟩
            ihave HOut := (Entails.of_eq (oSet_out (oMix d L fx k.val) k.val hk)) $$ HOut
            icases HOut with ⟨Y0, Y1, HOut⟩
            ihave Y0 := (Entails.of_eq ((oMix_ge d L fx (t := k.val) (n := 2 * k.val) (by omega)).trans (oP_pos (F := F) d L v0))) $$ Y0
            icases Y0 with ⟨%f0, Y0⟩
            ihave Y0 := (Entails.of_eq (out_congr d L (off_5 L k v0).symm (out_inb L _) (k3_off5_inb L k k3_h2) f0)) $$ Y0
            ihave Y1 := (Entails.of_eq ((oMix_ge d L fx (t := k.val) (n := 2 * k.val + 1) (by omega)).trans (oP_pos (F := F) d L v1))) $$ Y1
            icases Y1 with ⟨%f1, Y1⟩
            ihave Y1 := (Entails.of_eq (out_congr d L (off_10 L k v1).symm (out_inb L _) (k3_off10_inb L k k3_h5) f1)) $$ Y1
            sl_exec
            sl_for (laneV0 d L g4) $$ [F8_dst R6]
            case region =>
              intro (j : Fin k3_t2_loop.trips) _
              unfold laneV0
              iintro ⟨HA, %g, HB, %hl⟩
              sl_exec
              sl_step
              isplitl [HA]; · iexact HA
              iexists _; isplitl [HB]; · iexact HB
              ipureintro; exact lanes_step d L a4 a6 g4 g j _ _ hl
            · unfold laneV0
              isplitl [F8_dst]; · iexact F8_dst
              iexists _; isplitl [R6]; · iexact R6
              ipureintro; exact lanes_zero d L a4 a6 g4 _
            iintro %_ HI
            unfold laneV0
            icases HI with ⟨H4, %g6', H6, %hl6⟩
            have hl6 : Lanes d L a4 a6 g4 g6' 200 := Eq.mp (congrArg (Lanes d L a4 a6 g4 g6') trips2) hl6
            sl_exec
            sl_for (laneV1 d L g5) $$ [F9_dst R7]
            case region =>
              intro (j : Fin k3_t3_loop.trips) _
              unfold laneV1
              iintro ⟨HA, %g, HB, %hl⟩
              sl_exec
              sl_step
              isplitl [HA]; · iexact HA
              iexists _; isplitl [HB]; · iexact HB
              ipureintro; exact lanes_step' d L a5 a7 g5 g j _ _ hl
            · unfold laneV1
              isplitl [F9_dst]; · iexact F9_dst
              iexists _; isplitl [R7]; · iexact R7
              ipureintro; exact lanes_zero d L a5 a7 g5 _
            iintro %_ HI
            unfold laneV1
            icases HI with ⟨H5, %g7', H7, %hl7⟩
            have hl7 : Lanes d L a5 a7 g5 g7' 200 := Eq.mp (congrArg (Lanes d L a5 a7 g5 g7') trips3) hl7
            sl_exec
            sl_step
            isplitr; · iexact Hmw
            isplitl [HO]
            · iexists _; isplitr
              rotate_left
              · iexact HO
              ipureintro; intro p hp
              rcases Finset.mem_insert.mp hp with rfl | hp
              · exact .inr rfl
              rcases Finset.mem_insert.mp hp with rfl | hp
              · exact .inr rfl
              rcases Finset.mem_insert.mp hp with rfl | hp
              · exact .inr rfl
              rcases Finset.mem_insert.mp hp with rfl | hp
              · exact .inr rfl
              exact hW' p hp
            isplitl [HX F8_src F9_src]
            · iapply (Entails.of_eq (xSet_in (xP d L fx) k.val hk).symm)
              isplitl [F8_src]; · iapply (Entails.of_eq (xP_pos d L fx v0).symm); iexact F8_src
              isplitl [F9_src]; · iapply (Entails.of_eq (xP_pos d L fx v1).symm); iexact F9_src
              iexact HX
            isplitl [HOut F10_dst F11_dst]
            · iapply (Entails.of_eq (oSet_in (oMix d L fx (k.val + 1)) k.val hk (by omega)).symm)
              isplitl [F10_dst]; · iapply (Entails.of_eq ((oMix_lt d L fx (t := k.val + 1) (n := 2 * k.val - 2) (by omega)).trans (oQ_pos d L fx hm0.2)).symm); iexact F10_dst
              isplitl [F11_dst]
              · iapply (Entails.of_eq ((oMix_lt d L fx (t := k.val + 1) (n := 2 * k.val - 1) (by omega)).trans (oQ_pos d L fx (n := 2 * k.val - 1) (by have := hm1.2; rwa [show 2 * k.val + 1 - 2 = 2 * k.val - 1 by omega] at this))).symm)
                iapply (Entails.of_eq (congrArg (oqPiece d L fx) (show 2 * k.val + 1 - 2 = 2 * k.val - 1 by omega))); iexact F11_dst
              iapply (Entails.of_eq (oMix_core d L fx k.val)); iexact HOut
            isplitl [H4 F8]
            · iapply (Entails.of_eq (congrArg (inSlotV d L fx a4 cc3_scratch4.sem) (show 2 * k.val + 2 = 2 * (k.val + 1) by ring)))
              iapply (Entails.of_eq (inSlotV_neg d L fx v2).symm)
              isplitl [H4]; · iexists _; iexact H4
              iexact F8
            isplitl [F10 H6]
            · iapply (Entails.of_eq (congrArg (outSlotV d L fx a6 cc3_scratch6.sem) (show 2 * k.val + 2 = 2 * (k.val + 1) by ring)))
              iapply (fl_outV d L fx (off_5 L k v0) (k3_off5_inb L k k3_h2) v0 a4 a6 cc3_scratch6.sem f0 g4 g6' hl6 hin4); iexists _
              isplitr
              rotate_left
              · isplitl [F10]; · iexact F10
                iexact H6
              ipureintro; intro y; rfl
            isplitl [H5 F9]
            · iapply (Entails.of_eq (congrArg (inSlotV d L fx a5 cc3_scratch5.sem) (show 2 * k.val + 3 = 2 * (k.val + 1) + 1 by ring)))
              iapply (Entails.of_eq (inSlotV_neg d L fx v3').symm)
              isplitl [H5]; · iexists _; iexact H5
              iexact F9
            · iapply (Entails.of_eq (congrArg (outSlotV d L fx a7 cc3_scratch7.sem) (show 2 * k.val + 1 + 2 = 2 * (k.val + 1) + 1 by ring)))
              iapply (fl_outV d L fx (off_10 L k v1) (k3_off10_inb L k k3_h5) v1 a5 a7 cc3_scratch7.sem f1 g5 g7' hl7 hin5); iexists _
              isplitr
              rotate_left
              · isplitl [F11]; · iexact F11
                iexact H7
              ipureintro; intro y; rfl
          · -- the last trip of a tile with fifteen pieces: the second slot only drains
            have k3_h1 : k3_cond1 k = 1#1 := (cond1_iff k).mpr (by omega)
            have k3_h2 : k3_cond2 L k = 1#1 := cond2_iff L k
            have k3_h3 : ¬ k3_cond3 L k = 1#1 := fun h => absurd ((cond3_iff L k).mp h) (by omega)
            have k3_h4 : k3_cond4 k = 1#1 := (cond4_iff k).mpr (by omega)
            have k3_h5 : ¬ k3_cond5 L k = 1#1 := fun h => absurd ((cond5_iff L k).mp h) (by first | (unfold valid big at *; omega) | (unfold big at *; omega) | omega)
            have k3_h6 : ¬ k3_cond6 L k = 1#1 := fun h => absurd ((cond6_iff L k).mp h) (by first | (unfold valid big at *; omega) | (unfold big at *; omega) | omega)
            have v0 : valid L (2 * k.val) := by unfold valid big at *; omega
            have v1 : ¬ valid L (2 * k.val + 1) := by unfold valid big at *; omega
            have v2 : ¬ valid L (2 * k.val + 2) := by unfold valid big at *; omega
            have v3' : ¬ valid L (2 * k.val + 3) := by unfold valid big at *; omega
            have hm0 : 2 ≤ 2 * k.val ∧ valid L (2 * k.val - 2) := ⟨by omega, by unfold valid big at *; omega⟩
            have hm1 : 2 ≤ 2 * k.val + 1 ∧ valid L (2 * k.val + 1 - 2) := ⟨by omega, by unfold valid big at *; omega⟩
            ihave S8 := (Entails.of_eq (inSlotV_pos d L fx v0)) $$ S8
            icases S8 with ⟨%g4, %hin4, F8⟩
            ihave S9 := (Entails.of_eq (inSlotV_neg d L fx v1)) $$ S9
            icases S9 with ⟨⟨%g5, H5⟩, F9⟩
            ihave S10 := (Entails.of_eq (outSlotV_pos d L fx hm0)) $$ S10
            icases S10 with ⟨%g6, F10, R6⟩
            ihave S11 := (Entails.of_eq (outSlotV_pos d L fx hm1)) $$ S11
            icases S11 with ⟨%g7, F11, R7⟩
            ihave HX := (Entails.of_eq (xSet_out (xP d L fx) k.val hk)) $$ HX
            icases HX with ⟨-, -, HX⟩
            ihave HOut := (Entails.of_eq (oSet_out (oMix d L fx k.val) k.val hk)) $$ HOut
            icases HOut with ⟨Y0, -, HOut⟩
            ihave Y0 := (Entails.of_eq ((oMix_ge d L fx (t := k.val) (n := 2 * k.val) (by omega)).trans (oP_pos (F := F) d L v0))) $$ Y0
            icases Y0 with ⟨%f0, Y0⟩
            ihave Y0 := (Entails.of_eq (out_congr d L (off_5 L k v0).symm (out_inb L _) (k3_off5_inb L k k3_h2) f0)) $$ Y0
            sl_exec
            sl_for (laneV0 d L g4) $$ [F8_dst R6]
            case region =>
              intro (j : Fin k3_t2_loop.trips) _
              unfold laneV0
              iintro ⟨HA, %g, HB, %hl⟩
              sl_exec
              sl_step
              isplitl [HA]; · iexact HA
              iexists _; isplitl [HB]; · iexact HB
              ipureintro; exact lanes_step d L a4 a6 g4 g j _ _ hl
            · unfold laneV0
              isplitl [F8_dst]; · iexact F8_dst
              iexists _; isplitl [R6]; · iexact R6
              ipureintro; exact lanes_zero d L a4 a6 g4 _
            iintro %_ HI
            unfold laneV0
            icases HI with ⟨H4, %g6', H6, %hl6⟩
            have hl6 : Lanes d L a4 a6 g4 g6' 200 := Eq.mp (congrArg (Lanes d L a4 a6 g4 g6') trips2) hl6
            sl_exec
            sl_step
            isplitr; · iexact Hmw
            isplitl [HO]
            · iexists _; isplitr
              rotate_left
              · iexact HO
              ipureintro; intro p hp
              rcases Finset.mem_insert.mp hp with rfl | hp
              · exact .inr rfl
              rcases Finset.mem_insert.mp hp with rfl | hp
              · exact .inr rfl
              rcases Finset.mem_insert.mp hp with rfl | hp
              · exact .inr rfl
              exact hW' p hp
            isplitl [HX F8_src]
            · iapply (Entails.of_eq (xSet_in (xP d L fx) k.val hk).symm)
              isplitl [F8_src]; · iapply (Entails.of_eq (xP_pos d L fx v0).symm); iexact F8_src
              isplitr; · iapply (Entails.of_eq (xP_neg d L fx v1).symm); iempintro
              iexact HX
            isplitl [HOut F10_dst F11_dst]
            · iapply (Entails.of_eq (oSet_in (oMix d L fx (k.val + 1)) k.val hk (by omega)).symm)
              isplitl [F10_dst]; · iapply (Entails.of_eq ((oMix_lt d L fx (t := k.val + 1) (n := 2 * k.val - 2) (by omega)).trans (oQ_pos d L fx hm0.2)).symm); iexact F10_dst
              isplitl [F11_dst]
              · iapply (Entails.of_eq ((oMix_lt d L fx (t := k.val + 1) (n := 2 * k.val - 1) (by omega)).trans (oQ_pos d L fx (n := 2 * k.val - 1) (by have := hm1.2; rwa [show 2 * k.val + 1 - 2 = 2 * k.val - 1 by omega] at this))).symm)
                iapply (Entails.of_eq (congrArg (oqPiece d L fx) (show 2 * k.val + 1 - 2 = 2 * k.val - 1 by omega))); iexact F11_dst
              iapply (Entails.of_eq (oMix_core d L fx k.val)); iexact HOut
            isplitl [H4 F8]
            · iapply (Entails.of_eq (congrArg (inSlotV d L fx a4 cc3_scratch4.sem) (show 2 * k.val + 2 = 2 * (k.val + 1) by ring)))
              iapply (Entails.of_eq (inSlotV_neg d L fx v2).symm)
              isplitl [H4]; · iexists _; iexact H4
              iexact F8
            isplitl [F10 H6]
            · iapply (Entails.of_eq (congrArg (outSlotV d L fx a6 cc3_scratch6.sem) (show 2 * k.val + 2 = 2 * (k.val + 1) by ring)))
              iapply (fl_outV d L fx (off_5 L k v0) (k3_off5_inb L k k3_h2) v0 a4 a6 cc3_scratch6.sem f0 g4 g6' hl6 hin4); iexists _
              isplitr
              rotate_left
              · isplitl [F10]; · iexact F10
                iexact H6
              ipureintro; intro y; rfl
            isplitl [H5 F9]
            · iapply (Entails.of_eq (congrArg (inSlotV d L fx a5 cc3_scratch5.sem) (show 2 * k.val + 3 = 2 * (k.val + 1) + 1 by ring)))
              iapply (Entails.of_eq (inSlotV_neg d L fx v3').symm)
              isplitl [H5]; · iexists _; iexact H5
              iexact F9
            · iapply (Entails.of_eq (outSlotV_neg d L fx (m := 2 * (k.val + 1) + 1) (by intro h; apply v1; have := h.2; rwa [show 2 * (k.val + 1) + 1 - 2 = 2 * k.val + 1 by omega] at this)).symm)
              isplitl [R7]; · iexists _; iexact R7
              iexact F11
    · have hk0 : k.val = 0 := by omega
      -- the first trip: nothing to drain
      have k3_h1 : ¬ k3_cond1 k = 1#1 := fun h => absurd ((cond1_iff k).mp h) (by omega)
      have k3_h2 : k3_cond2 L k = 1#1 := cond2_iff L k
      have k3_h3 : k3_cond3 L k = 1#1 := (cond3_iff L k).mpr (by omega)
      have k3_h4 : ¬ k3_cond4 k = 1#1 := fun h => absurd ((cond4_iff k).mp h) (by omega)
      have k3_h5 : k3_cond5 L k = 1#1 := (cond5_iff L k).mpr (by first | (unfold valid big at *; omega) | (unfold big at *; omega) | omega)
      have k3_h6 : k3_cond6 L k = 1#1 := (cond6_iff L k).mpr (by first | (unfold valid big at *; omega) | (unfold big at *; omega) | omega)
      have v0 : valid L (2 * k.val) := by unfold valid big at *; omega
      have v1 : valid L (2 * k.val + 1) := by unfold valid big at *; omega
      have v2 : valid L (2 * k.val + 2) := by unfold valid big at *; omega
      have v3' : valid L (2 * k.val + 3) := by unfold valid big at *; omega
      have hm0 : ¬ (2 ≤ 2 * k.val ∧ valid L (2 * k.val - 2)) := by omega
      have hm1 : ¬ (2 ≤ 2 * k.val + 1 ∧ valid L (2 * k.val + 1 - 2)) := by omega
      ihave S8 := (Entails.of_eq (inSlotV_pos d L fx v0)) $$ S8
      icases S8 with ⟨%g4, %hin4, F8⟩
      ihave S9 := (Entails.of_eq (inSlotV_pos d L fx v1)) $$ S9
      icases S9 with ⟨%g5, %hin5, F9⟩
      ihave S10 := (Entails.of_eq (outSlotV_neg d L fx hm0)) $$ S10
      icases S10 with ⟨⟨%g6, R6⟩, F10⟩
      ihave S11 := (Entails.of_eq (outSlotV_neg d L fx hm1)) $$ S11
      icases S11 with ⟨⟨%g7, R7⟩, F11⟩
      ihave HX := (Entails.of_eq (xSet_out (xP d L fx) k.val hk)) $$ HX
      icases HX with ⟨X2, X3, HX⟩
      ihave X2 := (Entails.of_eq (xP_pos d L fx v2)) $$ X2
      ihave X2 := (Entails.of_eq (in_congr d L (off_6 L k v2).symm (in_inb L _) (k3_off6_inb L k k3_h3) fx)) $$ X2
      ihave X3 := (Entails.of_eq (xP_pos d L fx v3')) $$ X3
      ihave X3 := (Entails.of_eq (in_congr d L (off_11 L k v3').symm (in_inb L _) (k3_off11_inb L k k3_h6) fx)) $$ X3
      ihave HOut := (Entails.of_eq (oSet_out (oMix d L fx k.val) k.val hk)) $$ HOut
      icases HOut with ⟨Y0, Y1, HOut⟩
      ihave Y0 := (Entails.of_eq ((oMix_ge d L fx (t := k.val) (n := 2 * k.val) (by omega)).trans (oP_pos (F := F) d L v0))) $$ Y0
      icases Y0 with ⟨%f0, Y0⟩
      ihave Y0 := (Entails.of_eq (out_congr d L (off_5 L k v0).symm (out_inb L _) (k3_off5_inb L k k3_h2) f0)) $$ Y0
      ihave Y1 := (Entails.of_eq ((oMix_ge d L fx (t := k.val) (n := 2 * k.val + 1) (by omega)).trans (oP_pos (F := F) d L v1))) $$ Y1
      icases Y1 with ⟨%f1, Y1⟩
      ihave Y1 := (Entails.of_eq (out_congr d L (off_10 L k v1).symm (out_inb L _) (k3_off10_inb L k k3_h5) f1)) $$ Y1
      sl_exec
      sl_for (laneV0 d L g4) $$ [F8_dst R6]
      case region =>
        intro (j : Fin k3_t2_loop.trips) _
        unfold laneV0
        iintro ⟨HA, %g, HB, %hl⟩
        sl_exec
        sl_step
        isplitl [HA]; · iexact HA
        iexists _; isplitl [HB]; · iexact HB
        ipureintro; exact lanes_step d L a4 a6 g4 g j _ _ hl
      · unfold laneV0
        isplitl [F8_dst]; · iexact F8_dst
        iexists _; isplitl [R6]; · iexact R6
        ipureintro; exact lanes_zero d L a4 a6 g4 _
      iintro %_ HI
      unfold laneV0
      icases HI with ⟨H4, %g6', H6, %hl6⟩
      have hl6 : Lanes d L a4 a6 g4 g6' 200 := Eq.mp (congrArg (Lanes d L a4 a6 g4 g6') trips2) hl6
      sl_exec
      sl_for (laneV1 d L g5) $$ [F9_dst R7]
      case region =>
        intro (j : Fin k3_t3_loop.trips) _
        unfold laneV1
        iintro ⟨HA, %g, HB, %hl⟩
        sl_exec
        sl_step
        isplitl [HA]; · iexact HA
        iexists _; isplitl [HB]; · iexact HB
        ipureintro; exact lanes_step' d L a5 a7 g5 g j _ _ hl
      · unfold laneV1
        isplitl [F9_dst]; · iexact F9_dst
        iexists _; isplitl [R7]; · iexact R7
        ipureintro; exact lanes_zero d L a5 a7 g5 _
      iintro %_ HI
      unfold laneV1
      icases HI with ⟨H5, %g7', H7, %hl7⟩
      have hl7 : Lanes d L a5 a7 g5 g7' 200 := Eq.mp (congrArg (Lanes d L a5 a7 g5 g7') trips3) hl7
      sl_exec
      sl_step
      isplitr; · iexact Hmw
      isplitl [HO]
      · iexists _; isplitr
        rotate_left
        · iexact HO
        ipureintro; intro p hp
        rcases Finset.mem_insert.mp hp with rfl | hp
        · exact .inr rfl
        rcases Finset.mem_insert.mp hp with rfl | hp
        · exact .inr rfl
        exact hW' p hp
      isplitl [HX F8_src F9_src]
      · iapply (Entails.of_eq (xSet_in (xP d L fx) k.val hk).symm)
        isplitl [F8_src]; · iapply (Entails.of_eq (xP_pos d L fx v0).symm); iexact F8_src
        isplitl [F9_src]; · iapply (Entails.of_eq (xP_pos d L fx v1).symm); iexact F9_src
        iexact HX
      isplitl [HOut]
      · iapply (Entails.of_eq (congrArg (fun s => bigSep s (oMix d L fx (k.val + 1))) (show oCore k.val = oSet (k.val + 1) by rw [hk0]; decide)))
        iapply (Entails.of_eq (oMix_core d L fx k.val)); iexact HOut
      isplitl [F8]
      · iapply (Entails.of_eq (congrArg (inSlotV d L fx a4 cc3_scratch4.sem) (show 2 * k.val + 2 = 2 * (k.val + 1) by ring)))
        iapply (fl_inV d L fx (off_6 L k v2) (k3_off6_inb L k k3_h3) v2 a4 cc3_scratch4.sem); iexists _, _
        isplitr
        rotate_left
        · iexact F8
        ipureintro; intro y; rfl
      isplitl [F10 H6]
      · iapply (Entails.of_eq (congrArg (outSlotV d L fx a6 cc3_scratch6.sem) (show 2 * k.val + 2 = 2 * (k.val + 1) by ring)))
        iapply (fl_outV d L fx (off_5 L k v0) (k3_off5_inb L k k3_h2) v0 a4 a6 cc3_scratch6.sem f0 g4 g6' hl6 hin4); iexists _
        isplitr
        rotate_left
        · isplitl [F10]; · iexact F10
          iexact H6
        ipureintro; intro y; rfl
      isplitl [F9]
      · iapply (Entails.of_eq (congrArg (inSlotV d L fx a5 cc3_scratch5.sem) (show 2 * k.val + 3 = 2 * (k.val + 1) + 1 by ring)))
        iapply (fl_inV d L fx (off_11 L k v3') (k3_off11_inb L k k3_h6) v3' a5 cc3_scratch5.sem); iexists _, _
        isplitr
        rotate_left
        · iexact F9
        ipureintro; intro y; rfl
      · iapply (Entails.of_eq (congrArg (outSlotV d L fx a7 cc3_scratch7.sem) (show 2 * k.val + 1 + 2 = 2 * (k.val + 1) + 1 by ring)))
        iapply (fl_outV d L fx (off_10 L k v1) (k3_off10_inb L k k3_h5) v1 a5 a7 cc3_scratch7.sem f1 g5 g7' hl7 hin5); iexists _
        isplitr
        rotate_left
        · isplitl [F11]; · iexact F11
          iexact H7
        ipureintro; intro y; rfl
  · unfold invV
    isplitr; · iexact Hmw
    isplitl [HO]
    · iexists W; isplitr
      · ipureintro; exact fun p hp => .inl hp
      · iexact HO
    isplitl [HX]; · iexact HX
    isplitl [HOut]; · iapply (Entails.of_eq (oMix_zero d L fx).symm); iexact HOut
    isplitl [S8]; · iexact S8
    isplitl [H6 Hs10]
    · rw [outSlotV_neg d L fx (by omega)]; isplitl [H6]; · iexists _; iexact H6
      iexact Hs10
    isplitl [S9]; · iexact S9
    rw [outSlotV_neg d L fx (by omega)]; isplitl [H7]; · iexists _; iexact H7
    iexact Hs11
  iintro %acc' HI
  ihave HI := (Entails.of_eq (congrArg (fun t => invV d L O W fx t acc') trips1)) $$ HI
  unfold invV
  icases HI with ⟨-, ⟨%W', %hW', HO⟩, HX, HOut, S8, S10, S9, S11⟩
  have nv16 : ¬ valid L (2 * 8) := by unfold valid; omega
  have nv17 : ¬ valid L (2 * 8 + 1) := by unfold valid; omega
  have hm14 : 2 ≤ 2 * 8 ∧ valid L (2 * 8 - 2) := ⟨by omega, Or.inl (by omega)⟩
  ihave S8 := (Entails.of_eq (inSlotV_neg d L fx nv16)) $$ S8
  icases S8 with ⟨⟨%g4', H4⟩, Hs8⟩
  ihave S9 := (Entails.of_eq (inSlotV_neg d L fx nv17)) $$ S9
  icases S9 with ⟨⟨%g5', H5⟩, Hs9⟩
  ihave S10 := (Entails.of_eq (outSlotV_pos d L fx hm14)) $$ S10
  icases S10 with ⟨%g6', F10, R6⟩
  by_cases hb : big L
  · have k3_h8 : k3_cond8 L = 1#1 := (cond8_iff L).mpr hb
    have hm15 : 2 ≤ 2 * 8 + 1 ∧ valid L (2 * 8 + 1 - 2) := ⟨by omega, Or.inr ⟨by omega, hb⟩⟩
    ihave S11 := (Entails.of_eq (outSlotV_pos d L fx hm15)) $$ S11
    icases S11 with ⟨%g7', F11, R7⟩
    sl_exec
    sl_step
    isplitl [HX]; · iapply (xRange_end d L fx); iexact HX
    isplitl [HOut F10_dst F11_dst]
    · iapply (Entails.of_eq (oRange_end (oQ d L fx)).symm)
      isplitl [F10_dst]; · iapply (Entails.of_eq (oQ_pos d L fx hm14.2).symm); iexact F10_dst
      isplitl [F11_dst]; · iapply (Entails.of_eq (oQ_pos d L fx hm15.2).symm); iexact F11_dst
      iapply (Entails.of_eq (oMix_end d L fx)); iexact HOut
    isplitl [H4]; · iexists _; iexact H4
    isplitl [H5]; · iexists _; iexact H5
    isplitl [R6]; · iexists _; iexact R6
    isplitl [R7]; · iexists _; iexact R7
    isplitl [Hs8]; · iexact Hs8
    isplitl [Hs9]; · iexact Hs9
    isplitl [F10]; · iexact F10
    isplitl [F11]; · iexact F11
    isplitl [HO]
    · iexists _; isplitr
      rotate_left
      · iexact HO
      ipureintro; intro p hp
      rcases Finset.mem_insert.mp hp with rfl | hp
      · exact .inr rfl
      rcases Finset.mem_insert.mp hp with rfl | hp
      · exact .inr rfl
      exact hW' p hp
    iexact HR
  · have k3_h8 : ¬ k3_cond8 L = 1#1 := fun h => hb ((cond8_iff L).mp h)
    have hm15 : ¬ (2 ≤ 2 * 8 + 1 ∧ valid L (2 * 8 + 1 - 2)) := by intro h; have := h.2; unfold valid at this; omega
    ihave S11 := (Entails.of_eq (outSlotV_neg d L fx hm15)) $$ S11
    icases S11 with ⟨⟨%g7', R7⟩, F11⟩
    sl_exec
    sl_step
    isplitl [HX]; · iapply (xRange_end d L fx); iexact HX
    isplitl [HOut F10_dst]
    · iapply (Entails.of_eq (oRange_end (oQ d L fx)).symm)
      isplitl [F10_dst]; · iapply (Entails.of_eq (oQ_pos d L fx hm14.2).symm); iexact F10_dst
      isplitr; · iapply (Entails.of_eq (oQ_neg d L fx (n := 15) (by unfold valid; omega)).symm); iempintro
      iapply (Entails.of_eq (oMix_end d L fx)); iexact HOut
    isplitl [H4]; · iexists _; iexact H4
    isplitl [H5]; · iexists _; iexact H5
    isplitl [R6]; · iexists _; iexact R6
    isplitl [R7]; · iexists _; iexact R7
    isplitl [Hs8]; · iexact Hs8
    isplitl [Hs9]; · iexact Hs9
    isplitl [F10]; · iexact F10
    isplitl [F11]; · iexact F11
    isplitl [HO]
    · iexists _; isplitr
      rotate_left
      · iexact HO
      ipureintro; intro p hp
      rcases Finset.mem_insert.mp hp with rfl | hp
      · exact .inr rfl
      exact hW' p hp
    iexact HR

/-! The subcore's scoped storage: the four staging buffers and the four semaphores of this call, and the rest. -/

abbrev c8 : GSem nD τ sig := (thr d L, SemLoc.dma cc3_scratch4.sem)
abbrev c9 : GSem nD τ sig := (thr d L, SemLoc.dma cc3_scratch5.sem)
abbrev c10 : GSem nD τ sig := (thr d L, SemLoc.dma cc3_scratch6.sem)
abbrev c11 : GSem nD τ sig := (thr d L, SemLoc.dma cc3_scratch7.sem)

omit [FloatOps F] in
theorem ownSems0_V :
    (ownSems0 (thr d L) : sProp 𝕄)
      = iprop(semVal (c8 d L) 0 ∗ semVal (c9 d L) 0 ∗ semVal (c10 d L) 0 ∗ semVal (c11 d L) 0
          ∗ bigSep (((((ownCells (thr d L)).erase (c8 d L)).erase (c9 d L)).erase (c10 d L)).erase (c11 d L)) fun g => semVal g 0) := by
  unfold SparseCore.Cfg.ownSems0
  rw [SparseCore.bigSep_erase' ((mem_ownCells (g := c8 d L)).mpr ⟨rfl, by
      show (SemLoc.dma cc3_scratch4.sem : SemLoc sig).isScoped .scVector = true; decide⟩),
    SparseCore.bigSep_erase' (Finset.mem_erase.mpr ⟨fun e => absurd (Prod.mk.inj e).2 (by decide), (mem_ownCells (g := c9 d L)).mpr ⟨rfl, by
      show (SemLoc.dma cc3_scratch5.sem : SemLoc sig).isScoped .scVector = true; decide⟩⟩),
    SparseCore.bigSep_erase' (Finset.mem_erase.mpr ⟨fun e => absurd (Prod.mk.inj e).2 (by decide), Finset.mem_erase.mpr ⟨fun e => absurd (Prod.mk.inj e).2 (by decide),
      (mem_ownCells (g := c10 d L)).mpr ⟨rfl, by show (SemLoc.dma cc3_scratch6.sem : SemLoc sig).isScoped .scVector = true; decide⟩⟩⟩),
    SparseCore.bigSep_erase' (Finset.mem_erase.mpr ⟨fun e => absurd (Prod.mk.inj e).2 (by decide), Finset.mem_erase.mpr ⟨fun e => absurd (Prod.mk.inj e).2 (by decide),
      Finset.mem_erase.mpr ⟨fun e => absurd (Prod.mk.inj e).2 (by decide),
      (mem_ownCells (g := c11 d L)).mpr ⟨rfl, by show (SemLoc.dma cc3_scratch7.sem : SemLoc sig).isScoped .scVector = true; decide⟩⟩⟩⟩)]

abbrev pV (L : grid3.Coords) : Proc τ := Proc.scVector (cV L) (jV L)

omit [FloatOps F] in
theorem ownBufs_V :
    (ownBufs (thr d L) : sProp 𝕄)
      = iprop((∃ f, (thr d L).loc cc3_scratch0 ↦{fullShare} f) ∗ (∃ f, (thr d L).loc cc3_scratch1 ↦{fullShare} f)
          ∗ (∃ f, (thr d L).loc cc3_scratch2 ↦{fullShare} f) ∗ (∃ f, (thr d L).loc cc3_scratch3 ↦{fullShare} f)
          ∗ bigSep (((((ownRefs (τ := τ) (pV L)).erase ((pV L).devRef cc3_scratch0)).erase ((pV L).devRef cc3_scratch1)).erase
              ((pV L).devRef cc3_scratch2)).erase ((pV L).devRef cc3_scratch3))
              fun b => iprop(∃ f, ((d, b) : Loc nD τ sig) ↦{fullShare} f)) := by
  unfold SparseCore.Cfg.ownBufs
  refine (SparseCore.bigSep_erase' (SparseCore.Cfg.mem_ownRefs_of_owner (p := pV L) (b := (pV L).devRef cc3_scratch0) rfl)).trans ?_
  rw [SparseCore.bigSep_erase' (Finset.mem_erase.mpr ⟨fun e => absurd (Proc.devRef_injective _ e) (show (cc3_scratch1 : Ref sig .scVector) ≠ cc3_scratch0 by decide),
      SparseCore.Cfg.mem_ownRefs_of_owner (p := pV L) (b := (pV L).devRef cc3_scratch1) rfl⟩),
    SparseCore.bigSep_erase' (Finset.mem_erase.mpr ⟨fun e => absurd (Proc.devRef_injective _ e) (show (cc3_scratch2 : Ref sig .scVector) ≠ cc3_scratch1 by decide),
      Finset.mem_erase.mpr ⟨fun e => absurd (Proc.devRef_injective _ e) (show (cc3_scratch2 : Ref sig .scVector) ≠ cc3_scratch0 by decide),
      SparseCore.Cfg.mem_ownRefs_of_owner (p := pV L) (b := (pV L).devRef cc3_scratch2) rfl⟩⟩),
    SparseCore.bigSep_erase' (Finset.mem_erase.mpr ⟨fun e => absurd (Proc.devRef_injective _ e) (show (cc3_scratch3 : Ref sig .scVector) ≠ cc3_scratch2 by decide),
      Finset.mem_erase.mpr ⟨fun e => absurd (Proc.devRef_injective _ e) (show (cc3_scratch3 : Ref sig .scVector) ≠ cc3_scratch1 by decide),
      Finset.mem_erase.mpr ⟨fun e => absurd (Proc.devRef_injective _ e) (show (cc3_scratch3 : Ref sig .scVector) ≠ cc3_scratch0 by decide),
      SparseCore.Cfg.mem_ownRefs_of_owner (p := pV L) (b := (pV L).devRef cc3_scratch3) rfl⟩⟩⟩)]

/-- The rest of the subcore's scoped storage, which the task does not touch. -/
def restR : sProp 𝕄 :=
  iprop((bigSep (((((ownRefs (τ := τ) (pV L)).erase ((pV L).devRef cc3_scratch0)).erase ((pV L).devRef cc3_scratch1)).erase
              ((pV L).devRef cc3_scratch2)).erase ((pV L).devRef cc3_scratch3))
              fun b => iprop(∃ f, ((d, b) : Loc nD τ sig) ↦{fullShare} f))
      ∗ bigSep (((((ownCells (thr d L)).erase (c8 d L)).erase (c9 d L)).erase (c10 d L)).erase (c11 d L)) fun g => semVal g 0)

theorem body_pre (hO : ∀ g, O g none = 0) :
    iprop(levAts (K (F := F)).L (K (F := F)).lev ∗ emp ∗ goRes d L fx ∗ ownBufs (thr d L) ∗ ownSems0 (thr d L) ∗ owes (thr d L) O W)
      ⊢ runPre d L O W fx (restR (F := F) d L) := by
  rw [ownSems0_V, ownBufs_V]
  unfold goRes runPre restR
  iintro ⟨#Hlv, -, ⟨HX, HOut⟩, ⟨H4, H5, H6, H7, Hbufs⟩, ⟨Hs8, Hs9, Hs10, Hs11, Hsems⟩, HO⟩
  ihave Hmw := ((K (F := F)).mayWaits_none (thr := thr d L) hO) $$ Hlv
  isplitr; · iexact Hmw
  isplitl [HO]; · iexact HO
  isplitl [HX]; · iexact HX
  isplitl [HOut]; · iexact HOut
  isplitl [H4]; · iexact H4
  isplitl [H5]; · iexact H5
  isplitl [H6]; · iexact H6
  isplitl [H7]; · iexact H7
  isplitl [Hs8]; · iexact Hs8
  isplitl [Hs9]; · iexact Hs9
  isplitl [Hs10]; · iexact Hs10
  isplitl [Hs11]; · iexact Hs11
  isplitl [Hbufs]; · iexact Hbufs
  iexact Hsems

theorem body_post :
    runPost d L O W fx (restR (F := F) d L)
      ⊢ iprop(tdRes d L fx ∗ ownBufs (thr d L) ∗ ownSems0 (thr d L) ∗ ∃ W', ⌜∀ p ∈ W', p ∈ W ∨ p.2 = none⌝ ∗ owes (thr d L) O W') := by
  rw [ownSems0_V, ownBufs_V]
  unfold tdRes runPost restR
  iintro ⟨HX, HOut, H4, H5, H6, H7, Hs8, Hs9, Hs10, Hs11, HW, Hbufs, Hsems⟩
  isplitl [HX HOut]
  · isplitl [HX]; · iexact HX
    iexact HOut
  isplitl [H4 H5 H6 H7 Hbufs]
  · isplitl [H4]; · iexact H4
    isplitl [H5]; · iexact H5
    isplitl [H6]; · iexact H6
    isplitl [H7]; · iexact H7
    iexact Hbufs
  isplitl [Hs8 Hs9 Hs10 Hs11 Hsems]
  · isplitl [Hs8]; · iexact Hs8
    isplitl [Hs9]; · iexact Hs9
    isplitl [Hs10]; · iexact Hs10
    isplitl [Hs11]; · iexact Hs11
    iexact Hsems
  iexact HW

/-- The task in the launch theorem's shape: from what the call hands the tile and the subcore's scoped storage to
    what the tile hands back and the storage again. -/
theorem tile_body (hF : (K (F := F)).Facts) (hO : ∀ g, O g none = 0) :
    iprop(levAts (K (F := F)).L (K (F := F)).lev ∗ emp ∗ goRes d L fx ∗ scopedBufs (thr d L) ∗ scopedSems0 (thr d L) ∗ owes (thr d L) O W)
      ⊢ wp frame (wpE (defs₀ (F := F)) 𝒱₀ (thr d L) none) Set.univ
          (cc3_sc_group L xtW (Memref.isWhole_whole _) oW (Memref.isWhole_whole _) a4 (Memref.isWhole_whole _) a5 (Memref.isWhole_whole _)
            a6 (Memref.isWhole_whole _) a7 (Memref.isWhole_whole _) cc3_scratch4 cc3_scratch5 cc3_scratch6 cc3_scratch7)
          fun _ => iprop(tdRes d L fx ∗ scopedBufs (thr d L) ∗ scopedSems0 (thr d L)
            ∗ ∃ W', ⌜∀ p ∈ W', p ∈ W ∨ p.2 = none⌝ ∗ owes (thr d L) O W') := by
  rw [(K (F := F)).scopedBufs_V hF d (cV L) (jV L), SparseCore.Cfg.scopedSems0_V (Val := Elt F) d (cV L) (jV L)]
  exact (body_pre d L O W fx hO).trans ((tile_run d L O W fx (restR (F := F) d L)).trans (wp_mono frame _ _ fun _ => body_post d L O W fx))

end Tile

end Cert.Proof.TileB3

end
-- ==== Proof.TileVal4.lean ====
/-
  What the staging buffers of one vector subcore hold while it copies a piece of 3200 consecutive elements of row 4 of
  the transposed argument into the flat result, read index by index. No program and no ownership here: only the contents.

  A transfer lands the piece in row 0 of an 8 × 3200 staging array (`InRow`: position (0, t) of that row holds element
  (0, pos + t) of the transposed argument, `pos` the piece's first column). A loop of 200 trips copies that row, 16 lanes
  per trip, into the first 3200 elements of a flat staging array of 25600: trip `j` reads the 1 × 16 window at columns
  [16 j, 16 j + 16) of row 0 and writes it, flattened, at elements [16 j, 16 j + 16). After `j` trips the first 16 j
  elements of the flat array are the first 16 j elements of the row (`Lanes`); a trip extends the prefix by 16
  (`lanes_step`: an element below 16 j is outside the window written and keeps its value, an element of the window reads
  the lane written there, which is the row's element at the same column). A second transfer writes the first 3200
  elements of the flat array to the piece of the result at the same `pos`; so every element of that piece of the result
  holds the element of row 4 of the transposed argument at its own position (`out_written`): the composite of the three
  index maps t ↦ (0, pos + t) ↦ (0, t) ↦ t ↦ pos + t is the identity on positions of the row.
-/
import proofs.«206869_g37898791420194_cont_8to1_b_558_20_alg».proof.Proof.TileK4Defs
import proofs.«206869_g37898791420194_cont_8to1_b_558_20_alg».proof.Proof.Spec
import Idealize.ShloMosaic.Lib.WritesUnit
import Idealize.ShloMosaic.Lib.ValueLayout

noncomputable section

namespace Cert.Proof.TileVal4

open Cert.Proof.TileK4 Cert.KernelIdeal Cert.KernelIdeal.Gen
open Idealize.ShloMosaic Idealize.ShloMosaic.ValueIdx

variable {F : FTy → Type} [FloatOps F]
variable (d : Dev nD) (L : grid4.Coords)
variable (fx : Buf (Elt F) ((Memref.whole main_v0_scv : Memref sig .scVector .hbm S22x1600000 .f32).view.loc (thr d L)))

abbrev rowRect : Rect S8x3200 := Rect.unit (s := S8x3200) ![0, 0] S1x3200.size inb_S8x3200_S1x3200_0_0

/-- row 0 of the staging array is piece n of the argument row -/
def InRow (a : Memref sig .scVector .vmem S8x3200 .f32) (ga : Buf (Elt F) (a.view.loc (thr d L))) (n : ℕ) : Prop :=
  ∀ y : S1x3200.Idx, a.view.read (Elt F) ga (rowRect.emb y) = (inM L n).view.read (Elt F) fx y

theorem inRow_fetch (a : Memref sig .scVector .vmem S8x3200 .f32) (gold : Buf (Elt F) (a.view.loc (thr d L)))
    (w : S1x3200.Idx → Elt F .f32) (n : ℕ) (hw : ∀ y, w y = (inM L n).view.read (Elt F) fx y) :
    InRow d L fx a (a.view.writes (Elt F) gold [⟨rowRect, w⟩]) n :=
  fun y => (View.read_writes_cons_emb a.view gold rowRect w [] y).trans (hw y)

def Lanes (a : Memref sig .scVector .vmem S8x3200 .f32) (b : Memref sig .scVector .vmem S25600 .f32)
    (ga : Buf (Elt F) (a.view.loc (thr d L))) (gb : Buf (Elt F) (b.view.loc (thr d L))) (j : ℕ) : Prop :=
  ∀ (r : ℕ) (hr : r < 3200), r < 16 * j →
    b.view.read (Elt F) gb (ix1 (⟨r, by omega⟩ : Fin 25600)) = a.view.read (Elt F) ga (ix2 (0 : Fin 8) (⟨r, hr⟩ : Fin 3200))

theorem lanes_zero (a : Memref sig .scVector .vmem S8x3200 .f32) (b : Memref sig .scVector .vmem S25600 .f32)
    (ga : Buf (Elt F) (a.view.loc (thr d L))) (gb : Buf (Elt F) (b.view.loc (thr d L))) : Lanes d L a b ga gb 0 := by
  intro r hr h; omega

/-- The 1 × 16 window at column `c` of the staging array, read at lane `t`, is element `(0, c + t)`. -/
theorem idx_window {off : Fin 2 → ℕ} {c : ℕ} (h : off = ![0, c]) (p : ∀ a', off a' + S1x16.size a' ≤ S8x3200.size a')
    (t : Fin 16) (hr : c + t.val < 3200) :
    (Rect.unit (s := S8x3200) off S1x16.size p).toLoadRect.idx (ix2 (0 : Fin 1) t) = ix2 (0 : Fin 8) (⟨c + t.val, hr⟩ : Fin 3200) := by
  subst h
  funext a'; apply Fin.ext
  rw [LoadRect.idx_apply]
  match a' with
  | ⟨0, _⟩ => show 0 + 1 * 0 = 0; omega
  | ⟨1, _⟩ => show c + 1 * t.val = c + t.val; omega

/-- One trip of a lane-copy loop, the offsets given by their closed forms. -/
theorem lanes_step_core (a : Memref sig .scVector .vmem S8x3200 .f32) (b : Memref sig .scVector .vmem S25600 .f32)
    (ga : Buf (Elt F) (a.view.loc (thr d L))) (gb : Buf (Elt F) (b.view.loc (thr d L)))
    (t : ℕ) {off3 : Fin 2 → ℕ} {off4 : Fin 1 → ℕ} (h3 : off3 = ![0, 16 * t]) (h4 : off4 = ![16 * t])
    (p3 : ∀ a', off3 a' + S1x16.size a' ≤ S8x3200.size a') (p4 : ∀ a', off4 a' + S16.size a' ≤ S25600.size a')
    (h : Lanes d L a b ga gb t) :
    Lanes d L a b ga (b.view.writes (Elt F) gb [⟨Rect.unit (s := S25600) off4 S16.size p4,
      shapeCast S16 (a.view.readAt (Elt F) (Rect.unit (s := S8x3200) off3 S1x16.size p3).toLoadRect ga) shapeCasts_S1x16_S16⟩]) (t + 1) := by
  intro r hr hlt
  by_cases hlo : r < 16 * t
  · refine (View.read_writes_cons_unit_of_not_mem b.view gb p4 _ [] _ h4 (0 : Fin 1) (Or.inl ?_)).trans (h r hr hlo)
    show r < 16 * t
    exact hlo
  · have hx : r - 16 * t < 16 := by omega
    refine (View.read_writes_cons_unit_of_mem b.view gb p4 _ [] _ (ix1 (⟨r - 16 * t, hx⟩ : Fin 16)) h4 ?_).trans ?_
    · intro a'
      match a' with
      | ⟨0, _⟩ => show r = 16 * t + (r - 16 * t); omega
    · rw [shapeCast_1a_a_apply, View.readAt_apply, idx_window h3 p3 ⟨r - 16 * t, hx⟩ (by show 16 * t + (r - 16 * t) < 3200; omega)]
      congr 2
      apply Fin.ext
      show 16 * t + (r - 16 * t) = r
      omega

theorem lanes_step (a : Memref sig .scVector .vmem S8x3200 .f32) (b : Memref sig .scVector .vmem S25600 .f32)
    (ga : Buf (Elt F) (a.view.loc (thr d L))) (gb : Buf (Elt F) (b.view.loc (thr d L)))
    (j : Fin k4_t2_loop.trips) (p3 : ∀ a', (k4_off3 j) a' + S1x16.size a' ≤ S8x3200.size a')
    (p4 : ∀ a', (k4_off4 j) a' + S16.size a' ≤ S25600.size a') (h : Lanes d L a b ga gb j.val) :
    Lanes d L a b ga (b.view.writes (Elt F) gb [⟨Rect.unit (s := S25600) (k4_off4 j) S16.size p4,
      k4_pay1 (a.view.readAt (Elt F) (Rect.unit (s := S8x3200) (k4_off3 j) S1x16.size p3).toLoadRect ga)⟩]) (j.val + 1) :=
  lanes_step_core d L a b ga gb j.val (k4_off3_eq j) (k4_off4_eq j) p3 p4 h

theorem lanes_step' (a : Memref sig .scVector .vmem S8x3200 .f32) (b : Memref sig .scVector .vmem S25600 .f32)
    (ga : Buf (Elt F) (a.view.loc (thr d L))) (gb : Buf (Elt F) (b.view.loc (thr d L)))
    (j : Fin k4_t3_loop.trips) (p3 : ∀ a', (k4_off8 j) a' + S1x16.size a' ≤ S8x3200.size a')
    (p4 : ∀ a', (k4_off9 j) a' + S16.size a' ≤ S25600.size a') (h : Lanes d L a b ga gb j.val) :
    Lanes d L a b ga (b.view.writes (Elt F) gb [⟨Rect.unit (s := S25600) (k4_off9 j) S16.size p4,
      k4_pay2 (a.view.readAt (Elt F) (Rect.unit (s := S8x3200) (k4_off8 j) S1x16.size p3).toLoadRect ga)⟩]) (j.val + 1) :=
  lanes_step_core d L a b ga gb j.val (k4_off8_eq j) (k4_off9_eq j) p3 p4 h

/-- Position `y` of the write-out window of the flat staging array is its element `y 0`. -/
theorem stg_emb (y : S3200.Idx) (hy : (y 0).val < 25600) :
    (Rect.unit (s := S25600) ![0] S3200.size inb_S25600_S3200_0).emb y = ix1 (⟨(y 0).val, hy⟩ : Fin 25600) := by
  funext a'; apply Fin.ext
  match a' with
  | ⟨0, _⟩ => show 0 + 1 * (y 0).val = (y 0).val; omega

/-- Position `(0, t)` of row 0 of the staging array is its element `(0, t)`. -/
theorem row_emb (t : Fin 3200) : rowRect.emb (ix2 (0 : Fin 1) t) = ix2 (0 : Fin 8) t := by
  funext a'; apply Fin.ext
  match a' with
  | ⟨0, _⟩ => show 0 + 1 * 0 = 0; omega
  | ⟨1, _⟩ => show 0 + 1 * t.val = t.val; omega

/-- Position `(0, t)` of piece `n` of the argument row is element `(0, pos + t)` of the transposed argument;
    position `y` of piece `n` of the result is element `pos + y 0` of the result. -/
theorem in_emb (n : ℕ) (t : Fin 3200) (h : pos L n + t.val < 1600000) :
    (inM L n).view.emb (ix2 (0 : Fin 1) t) = ix2 (4 : Fin 22) (⟨pos L n + t.val, h⟩ : Fin 1600000) := by
  funext a'; apply Fin.ext
  match a' with
  | ⟨0, _⟩ => show 4 + 1 * 0 = 4; omega
  | ⟨1, _⟩ => show pos L n + 1 * t.val = pos L n + t.val; omega

theorem out_emb (n : ℕ) (y : S3200.Idx) (h : pos L n + (y 0).val < 1600000) :
    (outM L n).view.emb y = ix1 (⟨pos L n + (y 0).val, h⟩ : Fin 1600000) := by
  funext a'; apply Fin.ext
  match a' with
  | ⟨0, _⟩ => show pos L n + 1 * (y 0).val = pos L n + (y 0).val; omega

/-- Both lane-copy loops run 200 trips: 200 · 16 = 3200, the whole row. -/
theorem trips2 : k4_t2_loop.trips = 200 := by decide
theorem trips3 : k4_t3_loop.trips = 200 := by decide

/-- After all its trips a lane-copy loop has copied the whole row. -/
theorem lanes_all (a : Memref sig .scVector .vmem S8x3200 .f32) (b : Memref sig .scVector .vmem S25600 .f32)
    (ga : Buf (Elt F) (a.view.loc (thr d L))) (gb : Buf (Elt F) (b.view.loc (thr d L)))
    (h : Lanes d L a b ga gb k4_t2_loop.trips) : Lanes d L a b ga gb 200 := trips2 ▸ h
theorem lanes_all' (a : Memref sig .scVector .vmem S8x3200 .f32) (b : Memref sig .scVector .vmem S25600 .f32)
    (ga : Buf (Elt F) (a.view.loc (thr d L))) (gb : Buf (Elt F) (b.view.loc (thr d L)))
    (h : Lanes d L a b ga gb k4_t3_loop.trips) : Lanes d L a b ga gb 200 := trips3 ▸ h

/-- The write-out of a piece: the first 3200 elements of the flat staging array, which the 200 lane copies filled from
    row 0 of the staging array, which the fetch filled from piece `n` of row 4 of the transposed argument, land at
    piece `n` of the result, at the same positions of the row. -/
theorem out_written (a : Memref sig .scVector .vmem S8x3200 .f32) (b : Memref sig .scVector .vmem S25600 .f32) (n : ℕ)
    (ga : Buf (Elt F) (a.view.loc (thr d L))) (gb : Buf (Elt F) (b.view.loc (thr d L)))
    (f0 : Buf (Elt F) ((outM L n).view.loc (thr d L))) (w : S3200.Idx → Elt F .f32)
    (hw : ∀ y, w y = (stg b).view.read (Elt F) gb y) (hl : Lanes d L a b ga gb 200) (hr : InRow d L fx a ga n) (hv : valid L n) :
    ∀ i ∈ (outM L n).view.set, ((outM L n).view.writes (Elt F) f0 [⟨Rect.whole _, w⟩]) i = Cert.Spec.row 4 fx i := by
  intro i hi
  obtain ⟨y, -, rfl⟩ := Finset.mem_map.mp hi
  have hy : (y 0).val < 3200 := (y 0).isLt
  have hp : pos L n + (y 0).val < 1600000 := by unfold pos; omega
  have e1 : (outM L n).view.writes (Elt F) f0 [⟨Rect.whole _, w⟩] ((outM L n).view.emb y) = w y := by
    have h := View.read_writes_cons_emb (outM L n).view f0 (Rect.whole _) w [] y
    rw [Rect.emb_whole_apply] at h
    exact (cast_eq _ _).symm.trans ((View.read_apply _ _).symm.trans h)
  have e2 : (stg b).view.read (Elt F) gb y = b.view.read (Elt F) gb (ix1 (⟨(y 0).val, by omega⟩ : Fin 25600)) :=
    congrArg (b.view.read (Elt F) gb) (stg_emb y (by omega))
  have e3 : a.view.read (Elt F) ga (ix2 (0 : Fin 8) (⟨(y 0).val, hy⟩ : Fin 3200))
      = (inM L n).view.read (Elt F) fx (ix2 (0 : Fin 1) (⟨(y 0).val, hy⟩ : Fin 3200)) :=
    (congrArg (a.view.read (Elt F) ga) (row_emb ⟨(y 0).val, hy⟩).symm).trans (hr _)
  have e4 : (inM L n).view.read (Elt F) fx (ix2 (0 : Fin 1) (⟨(y 0).val, hy⟩ : Fin 3200))
      = fx (ix2 (4 : Fin 22) (⟨pos L n + (y 0).val, hp⟩ : Fin 1600000)) :=
    ((View.read_apply _ _).trans (cast_eq _ _)).trans (congrArg fx (in_emb L n ⟨(y 0).val, hy⟩ hp))
  have e5 : Cert.Spec.row 4 fx ((outM L n).view.emb y) = fx (ix2 (4 : Fin 22) (⟨pos L n + (y 0).val, hp⟩ : Fin 1600000)) :=
    (congrArg (Cert.Spec.row 4 fx) (out_emb L n y hp)).trans (Cert.Spec.row_apply 4 fx _)
  exact e1.trans ((hw y).trans (e2.trans ((hl _ hy (by omega)).trans (e3.trans (e4.trans e5.symm)))))

end Cert.Proof.TileVal4

end
-- ==== Proof.TileK4.lean ====
/-
  One vector subcore's task of copy kernel 4 (counting from 0), run symbolically: the two fetch slots and two write-out slots
  between trips of the main loop (what each transfer in flight will hand back, and what the staging buffers hold), the
  invariant of the main loop and of the two lane-copy loops, and the task's run — from the tile's pieces of row 4 of
  the transposed argument and of the result to the same pieces with the result holding the row's elements.
-/
import proofs.«206869_g37898791420194_cont_8to1_b_558_20_alg».proof.Proof.TileK4Defs
import proofs.«206869_g37898791420194_cont_8to1_b_558_20_alg».proof.Proof.TileVal4
noncomputable section

namespace Cert.Proof.TileK4

open Cert.KernelIdeal Cert.KernelIdeal.Gen Cert.Proof.TileVal4
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 22) (Elt F) ℕ UU ℕ
local notation "xtW" => (Memref.whole Cert.KernelIdeal.main_v0_scv : Memref Cert.KernelIdeal.sig Kind.scVector Space.hbm Cert.KernelIdeal.S22x1600000 EltTy.f32)
local notation "oW" => (Memref.whole Cert.KernelIdeal.main_v5_scv : Memref Cert.KernelIdeal.sig Kind.scVector Space.hbm Cert.KernelIdeal.S1600000 EltTy.f32)
local notation "a4" => (Memref.whole Cert.KernelIdeal.cc4_scratch0 : Memref Cert.KernelIdeal.sig Kind.scVector Space.vmem Cert.KernelIdeal.S8x3200 EltTy.f32)
local notation "a5" => (Memref.whole Cert.KernelIdeal.cc4_scratch1 : Memref Cert.KernelIdeal.sig Kind.scVector Space.vmem Cert.KernelIdeal.S8x3200 EltTy.f32)
local notation "a6" => (Memref.whole Cert.KernelIdeal.cc4_scratch2 : Memref Cert.KernelIdeal.sig Kind.scVector Space.vmem Cert.KernelIdeal.S25600 EltTy.f32)
local notation "a7" => (Memref.whole Cert.KernelIdeal.cc4_scratch3 : Memref Cert.KernelIdeal.sig Kind.scVector Space.vmem Cert.KernelIdeal.S25600 EltTy.f32)

variable [FloatOps F]

section Tile

variable (d : Dev nD) (L : grid4.Coords)
variable (O : CellTallies nD τ sig (HIx 22)) (W : Waits sig (HIx 22))
variable (fx : Buf (Elt F) ((xtW).view.loc (thr d L)))

/-- Piece `n` of the result at its final contents. -/
abbrev oqPiece (n : ℕ) : sProp 𝕄 := (outM L n).view.loc (thr d L) ↦[(outM L n).view.set]{fullShare} (Cert.Spec.row 4 fx)
theorem oQ_pos {n : ℕ} (v : valid L n) : oQ d L fx n = oqPiece d L fx n := if_pos v
theorem oQ_neg {n : ℕ} (v : ¬ valid L n) : oQ d L fx n = iprop(emp) := if_neg v

/-- A fetch slot, remembering that the staging row it will hand back holds the piece. -/
def inSlotV (a : Memref sig .scVector .vmem S8x3200 .f32) (sm : DmaSem sig) (n : ℕ) : sProp 𝕄 :=
  if valid L n then
    iprop(∃ g, ⌜InRow d L fx a g n⌝ ∗ Transfers.Flight countersEmb (thr d L) (SemLoc.dma sm) (default : HIx 22) NN
      iprop((a.view.loc (thr d L) ↦{fullShare} g) ∗ xtPiece d L fx n))
  else iprop((∃ g, a.view.loc (thr d L) ↦{fullShare} g) ∗ semVal (thr d L, SemLoc.dma sm) 0)

/-- A write-out slot: the piece in flight will come back holding the row's elements. -/
def outSlotV (a : Memref sig .scVector .vmem S25600 .f32) (sm : DmaSem sig) (m : ℕ) : sProp 𝕄 :=
  if 2 ≤ m ∧ valid L (m - 2) then
    iprop(∃ g, Transfers.Flight countersEmb (thr d L) (SemLoc.dma sm) (default : HIx 22) NN
        iprop(oqPiece d L fx (m - 2) ∗ ((stg a).view.loc (thr d L) ↦[(stg a).view.set]{fullShare} g))
      ∗ (a.view.loc (thr d L) ↦[Finset.univ \ (stg a).view.set]{fullShare} g))
  else iprop((∃ g, a.view.loc (thr d L) ↦{fullShare} g) ∗ semVal (thr d L, SemLoc.dma sm) 0)

theorem inSlotV_pos {a : Memref sig .scVector .vmem S8x3200 .f32} {sm : DmaSem sig} {n : ℕ} (v : valid L n) :
    inSlotV d L fx a sm n = iprop(∃ g, ⌜InRow d L fx a g n⌝ ∗ Transfers.Flight countersEmb (thr d L) (SemLoc.dma sm) (default : HIx 22) NN
      iprop((a.view.loc (thr d L) ↦{fullShare} g) ∗ xtPiece d L fx n)) := by unfold inSlotV; rw [if_pos v]
theorem inSlotV_neg {a : Memref sig .scVector .vmem S8x3200 .f32} {sm : DmaSem sig} {n : ℕ} (v : ¬ valid L n) :
    inSlotV d L fx a sm n = iprop((∃ g, a.view.loc (thr d L) ↦{fullShare} g) ∗ semVal (thr d L, SemLoc.dma sm) 0) := by
  unfold inSlotV; rw [if_neg v]
theorem outSlotV_pos {a : Memref sig .scVector .vmem S25600 .f32} {sm : DmaSem sig} {m : ℕ} (h : 2 ≤ m ∧ valid L (m - 2)) :
    outSlotV d L fx a sm m = iprop(∃ g, Transfers.Flight countersEmb (thr d L) (SemLoc.dma sm) (default : HIx 22) NN
        iprop(oqPiece d L fx (m - 2) ∗ ((stg a).view.loc (thr d L) ↦[(stg a).view.set]{fullShare} g))
      ∗ (a.view.loc (thr d L) ↦[Finset.univ \ (stg a).view.set]{fullShare} g)) := by unfold outSlotV; rw [if_pos h]
theorem outSlotV_neg {a : Memref sig .scVector .vmem S25600 .f32} {sm : DmaSem sig} {m : ℕ} (h : ¬ (2 ≤ m ∧ valid L (m - 2))) :
    outSlotV d L fx a sm m = iprop((∃ g, a.view.loc (thr d L) ↦{fullShare} g) ∗ semVal (thr d L, SemLoc.dma sm) 0) := by
  unfold outSlotV; rw [if_neg h]

/-- A fetch just issued: the staging row will hold what the transfer reads, which is the piece. -/
theorem fl_inV {off : Fin 2 → ℕ} {n : ℕ} (h : off = ![4, pos L n]) (p : ∀ a, off a + S1x3200.size a ≤ S22x1600000.size a) (v : valid L n)
    (a : Memref sig .scVector .vmem S8x3200 .f32) (sm : DmaSem sig) :
    (iprop(∃ (gold : Buf (Elt F) (a.view.loc (thr d L))) (w : S1x3200.Idx → Elt F .f32),
        ⌜∀ y, w y = ((xtW).slice (Rect.unit (s := S22x1600000) off S1x3200.size p) (fun _ => rfl)).view.read (Elt F) fx y⌝
        ∗ Transfers.Flight countersEmb (thr d L) (SemLoc.dma sm) (default : HIx 22) NN
          iprop((a.view.loc (thr d L) ↦{fullShare} a.view.writes (Elt F) gold [⟨rowRect, w⟩])
            ∗ (((xtW).slice (Rect.unit (s := S22x1600000) off S1x3200.size p) (fun _ => rfl)).view.loc (thr d L)
                ↦[((xtW).slice (Rect.unit (s := S22x1600000) off S1x3200.size p) (fun _ => rfl)).view.set]{fullShare} fx))) : sProp 𝕄)
      ⊢ inSlotV d L fx a sm n := by
  subst h
  rw [inSlotV_pos d L fx v]
  iintro ⟨%gold, %w, %hw, H⟩
  iexists _
  isplitr
  · ipureintro; exact inRow_fetch d L fx a gold w n hw
  · iexact H

set_option maxHeartbeats 4000000 in
/-- A write-out just issued from a flat staging buffer whose first 3200 elements are the staging row, itself piece
    `n` of the argument row: the piece of the result will hold the row's elements. -/
theorem fl_outV {off : Fin 1 → ℕ} {n : ℕ} (h : off = ![pos L n]) (p : ∀ a, off a + S3200.size a ≤ S1600000.size a) (v : valid L n)
    (ar : Memref sig .scVector .vmem S8x3200 .f32) (a : Memref sig .scVector .vmem S25600 .f32) (sm : DmaSem sig)
    (f0 : Buf (Elt F) ((oW).view.loc (thr d L))) (ga : Buf (Elt F) (ar.view.loc (thr d L))) (gb : Buf (Elt F) (a.view.loc (thr d L)))
    (hl : Lanes d L ar a ga gb 200) (hr : InRow d L fx ar ga n) :
    (iprop(∃ (w : S3200.Idx → Elt F .f32),
        ⌜∀ y, w y = (stg a).view.read (Elt F) gb y⌝
        ∗ Transfers.Flight countersEmb (thr d L) (SemLoc.dma sm) (default : HIx 22) NN
          iprop((((oW).slice (Rect.unit (s := S1600000) off S3200.size p) (fun _ => rfl)).view.loc (thr d L)
                ↦[((oW).slice (Rect.unit (s := S1600000) off S3200.size p) (fun _ => rfl)).view.set]{fullShare}
                  (((oW).slice (Rect.unit (s := S1600000) off S3200.size p) (fun _ => rfl)).view.writes (Elt F) f0 [⟨Rect.whole _, w⟩]))
            ∗ ((stg a).view.loc (thr d L) ↦[(stg a).view.set]{fullShare} gb))
        ∗ (a.view.loc (thr d L) ↦[Finset.univ \ (stg a).view.set]{fullShare} gb)) : sProp 𝕄)
      ⊢ outSlotV d L fx a sm (n + 2) := by
  subst h
  rw [outSlotV_pos d L fx (m := n + 2) ⟨by omega, by simpa using v⟩]
  iintro ⟨%w, %hw, H, R⟩
  have hD : (iprop(((outM L n).view.loc (thr d L) ↦[(outM L n).view.set]{fullShare} ((outM L n).view.writes (Elt F) f0 [⟨Rect.whole _, w⟩]))
          ∗ ((stg a).view.loc (thr d L) ↦[(stg a).view.set]{fullShare} gb)) : sProp 𝕄)
      ⊢ iprop(oqPiece d L fx (n + 2 - 2) ∗ ((stg a).view.loc (thr d L) ↦[(stg a).view.set]{fullShare} gb)) := by
    rw [Nat.add_sub_cancel]
    have e : (((outM L n).view.loc (thr d L) ↦[(outM L n).view.set]{fullShare} ((outM L n).view.writes (Elt F) f0 [⟨Rect.whole _, w⟩])) : sProp 𝕄)
        = oqPiece d L fx n := pointsTo_congr (out_written d L fx ar a n ga gb f0 w hw hl hr v)
    iintro ⟨H1, H2⟩
    isplitl [H1]
    · iapply (Entails.of_eq e); iexact H1
    · iexact H2
  iexists gb
  isplitl [H]
  · iapply (Transfers.Flight_mono countersEmb (thr d L) hD); iexact H
  · iexact R

/-- The result pieces outside the slots before trip `t`: those already written hold the row, the others some contents. -/
def oMix (t n : ℕ) : sProp 𝕄 := if n + 2 < 2 * t then oQ d L fx n else oP (F := F) d L n
theorem oMix_lt {t n : ℕ} (h : n + 2 < 2 * t) : oMix d L fx t n = oQ d L fx n := if_pos h
theorem oMix_ge {t n : ℕ} (h : ¬ n + 2 < 2 * t) : oMix d L fx t n = oP (F := F) d L n := if_neg h
theorem oMix_core (k : ℕ) : bigSep (oCore k) (oMix d L fx k) = bigSep (oCore k) (oMix d L fx (k + 1)) :=
  bigSep_congr fun n hn => by
    have hn' : n + 2 ≠ 2 * k ∧ n + 2 ≠ 2 * k + 1 ∧ n ≠ 2 * k ∧ n ≠ 2 * k + 1 := by
      simp only [oCore, Finset.mem_filter, Finset.mem_range] at hn; exact hn.2
    by_cases h : n + 2 < 2 * k
    · rw [oMix_lt d L fx h, oMix_lt d L fx (by omega)]
    · rw [oMix_ge d L fx h, oMix_ge d L fx (by omega)]
theorem oMix_zero : bigSep (oSet 0) (oMix d L fx 0) = bigSep (Finset.range 18) (oP (F := F) d L) := by
  rw [oSet_zero]; exact bigSep_congr fun n _ => oMix_ge d L fx (by omega)
theorem oMix_end : bigSep (oSet 8) (oMix d L fx 8) = bigSep (oSet 8) (oQ d L fx) :=
  bigSep_congr fun n hn => by
    have hn' : n < 18 ∧ n + 2 ≠ 16 ∧ n + 2 ≠ 17 := by simpa only [oSet, Finset.mem_filter, Finset.mem_range] using hn
    by_cases h : n + 2 < 2 * 8
    · exact oMix_lt d L fx h
    · rw [oMix_ge d L fx h, oP_neg (F := F) d L (by unfold valid; omega), oQ_neg d L fx (by unfold valid; omega)]

/-- The lane-copy loops: before trip `j` the first 16·j elements of the flat staging buffer are the staging row's. -/
def laneV0 (g4 : Buf (Elt F) ((a4).view.loc (thr d L))) (j : ℕ) (_ : PUnit) : sProp 𝕄 :=
  iprop(((a4).view.loc (thr d L) ↦{fullShare} g4) ∗ (∃ g, ((a6).view.loc (thr d L) ↦{fullShare} g) ∗ ⌜Lanes d L a4 a6 g4 g j⌝))
def laneV1 (g5 : Buf (Elt F) ((a5).view.loc (thr d L))) (j : ℕ) (_ : PUnit) : sProp 𝕄 :=
  iprop(((a5).view.loc (thr d L) ↦{fullShare} g5) ∗ (∃ g, ((a7).view.loc (thr d L) ↦{fullShare} g) ∗ ⌜Lanes d L a5 a7 g5 g j⌝))

def invV (t : ℕ) (_ : PUnit) : sProp 𝕄 :=
  iprop(Transfers.MayWaits (thr d L) (none : HIx 22) O
    ∗ (∃ W', ⌜∀ p ∈ W', p ∈ W ∨ p.2 = none⌝ ∗ owes (thr d L) O W')
    ∗ bigSep (xSet t) (xP d L fx) ∗ bigSep (oSet t) (oMix d L fx t)
    ∗ inSlotV d L fx a4 cc4_scratch4.sem (2 * t) ∗ outSlotV d L fx a6 cc4_scratch6.sem (2 * t)
    ∗ inSlotV d L fx a5 cc4_scratch5.sem (2 * t + 1) ∗ outSlotV d L fx a7 cc4_scratch7.sem (2 * t + 1))

/-- After the last trip nothing of the argument row is in a slot: the tile holds all its pieces. -/
theorem xRange_end : bigSep (xSet 8) (xP d L fx) ⊢ bigSep (Finset.range 18) (xP d L fx) := by
  rw [two_out (s := Finset.range 18) (a := 16) (b := 17) (by decide) (by decide) (by decide),
    show ((Finset.range 18).erase 16).erase 17 = xSet 8 by decide]
  iintro H
  isplitr; · iapply (Entails.of_eq (xP_neg d L fx (n := 16) (by unfold valid; omega)).symm); iempintro
  isplitr; · iapply (Entails.of_eq (xP_neg d L fx (n := 17) (by unfold valid; omega)).symm); iempintro
  iexact H
omit [FloatOps F] in
theorem oRange_end (Φ : ℕ → sProp 𝕄) : bigSep (Finset.range 18) Φ = iprop(Φ 14 ∗ Φ 15 ∗ bigSep (oSet 8) Φ) := by
  rw [two_out (s := Finset.range 18) (a := 14) (b := 15) (by decide) (by decide) (by decide),
    show ((Finset.range 18).erase 14).erase 15 = oSet 8 by decide]

/-- What the run starts from and ends with, beside an untouched rest `R`. -/
def runPre (R : sProp 𝕄) : sProp 𝕄 :=
    iprop(Transfers.MayWaits (thr d L) (none : HIx 22) O ∗ owes (thr d L) O W
        ∗ bigSep (Finset.range 18) (xP d L fx) ∗ bigSep (Finset.range 18) (oP (F := F) d L)
        ∗ (∃ g, (a4).view.loc (thr d L) ↦{fullShare} g) ∗ (∃ g, (a5).view.loc (thr d L) ↦{fullShare} g)
        ∗ (∃ g, (a6).view.loc (thr d L) ↦{fullShare} g) ∗ (∃ g, (a7).view.loc (thr d L) ↦{fullShare} g)
        ∗ semVal (thr d L, SemLoc.dma cc4_scratch4.sem) 0 ∗ semVal (thr d L, SemLoc.dma cc4_scratch5.sem) 0
        ∗ semVal (thr d L, SemLoc.dma cc4_scratch6.sem) 0 ∗ semVal (thr d L, SemLoc.dma cc4_scratch7.sem) 0 ∗ R)
def runPost (R : sProp 𝕄) : sProp 𝕄 :=
    iprop(bigSep (Finset.range 18) (xP d L fx) ∗ bigSep (Finset.range 18) (oQ d L fx)
            ∗ (∃ g, (a4).view.loc (thr d L) ↦{fullShare} g) ∗ (∃ g, (a5).view.loc (thr d L) ↦{fullShare} g)
            ∗ (∃ g, (a6).view.loc (thr d L) ↦{fullShare} g) ∗ (∃ g, (a7).view.loc (thr d L) ↦{fullShare} g)
            ∗ semVal (thr d L, SemLoc.dma cc4_scratch4.sem) 0 ∗ semVal (thr d L, SemLoc.dma cc4_scratch5.sem) 0
            ∗ semVal (thr d L, SemLoc.dma cc4_scratch6.sem) 0 ∗ semVal (thr d L, SemLoc.dma cc4_scratch7.sem) 0
            ∗ (∃ W', ⌜∀ p ∈ W', p ∈ W ∨ p.2 = none⌝ ∗ owes (thr d L) O W') ∗ R)

set_option maxHeartbeats 16000000 in
/-- The task's run: from its pieces of the argument row and of the result, the four staging buffers and the four
    semaphores at zero, to the same with every piece of the result holding the row's elements. -/
theorem tile_run (R : sProp 𝕄) :
    runPre d L O W fx R
      ⊢ wp frame (wpE (defs₀ (F := F)) 𝒱₀ (thr d L) none) Set.univ
          (cc4_sc_group L xtW (Memref.isWhole_whole _) oW (Memref.isWhole_whole _) a4 (Memref.isWhole_whole _) a5 (Memref.isWhole_whole _)
            a6 (Memref.isWhole_whole _) a7 (Memref.isWhole_whole _) cc4_scratch4 cc4_scratch5 cc4_scratch6 cc4_scratch7)
          fun _ => runPost d L O W fx R := by
  unfold runPre runPost
  have v0 : valid L 0 := Or.inl (by omega)
  have v1 : valid L 1 := Or.inl (by omega)
  have k4_h7 : k4_cond7 L = 1#1 := cond7_iff L
  iintro ⟨#Hmw, HO, HX, HOut, ⟨%g4, H4⟩, ⟨%g5, H5⟩, ⟨%g6, H6⟩, ⟨%g7, H7⟩, Hs8, Hs9, Hs10, Hs11, HR⟩
  ihave HX := (Entails.of_eq (xRange_split d L fx v0 v1)) $$ HX
  icases HX with ⟨X0, X1, HX⟩
  ihave X0 := (Entails.of_eq (in_congr d L (off_in0 L v0).symm (in_inb L _) (k4_off1_inb L 0) fx)) $$ X0
  ihave X1 := (Entails.of_eq (in_congr d L (off_in1 L v1).symm (in_inb L _) (k4_off1_inb L 1) fx)) $$ X1
  sl_unfold [cc4_sc_group]
  sl_exec
  ihave S8 := (fl_inV d L fx (off_in0 L v0) (k4_off1_inb L 0) v0 a4 cc4_scratch4.sem) $$ [Hs8]
  · iexists _, _
    isplitr
    rotate_left
    · iexact Hs8
    ipureintro; intro y; rfl
  ihave S9 := (fl_inV d L fx (off_in1 L v1) (k4_off1_inb L 1) v1 a5 cc4_scratch5.sem) $$ [Hs9]
  · iexists _, _
    isplitr
    rotate_left
    · iexact Hs9
    ipureintro; intro y; rfl
  sl_for (invV d L O W fx) $$ [HO HX HOut S8 S9 H6 H7 Hs10 Hs11]
  case region =>
    intro (k : Fin k4_t1_loop.trips) acc
    have hk : k.val < 8 := Nat.lt_of_lt_of_eq k.isLt trips1
    unfold invV
    iintro ⟨#Hmw, ⟨%W', %hW', HO⟩, HX, HOut, S8, S10, S9, S11⟩
    by_cases hk1 : 1 ≤ k.val
    · by_cases v3 : valid L (2 * k.val + 3)
      · -- the generic trip: both drains, both pieces worked, both next fetches issued
        have hk6 : k.val ≤ 6 := by unfold valid at v3; omega
        have k4_h1 : k4_cond1 k = 1#1 := (cond1_iff k).mpr (by omega)
        have k4_h2 : k4_cond2 L k = 1#1 := cond2_iff L k
        have k4_h3 : k4_cond3 L k = 1#1 := (cond3_iff L k).mpr (by omega)
        have k4_h4 : k4_cond4 k = 1#1 := (cond4_iff k).mpr (by omega)
        have k4_h5 : k4_cond5 L k = 1#1 := (cond5_iff L k).mpr (by first | (unfold valid big at *; omega) | (unfold big at *; omega) | omega)
        have k4_h6 : k4_cond6 L k = 1#1 := (cond6_iff L k).mpr (by first | (unfold valid big at *; omega) | (unfold big at *; omega) | omega)
        have v0 : valid L (2 * k.val) := by unfold valid big at *; omega
        have v1 : valid L (2 * k.val + 1) := by unfold valid big at *; omega
        have v2 : valid L (2 * k.val + 2) := by unfold valid big at *; omega
        have v3' : valid L (2 * k.val + 3) := by unfold valid big at *; omega
        have hm0 : 2 ≤ 2 * k.val ∧ valid L (2 * k.val - 2) := ⟨by omega, by unfold valid big at *; omega⟩
        have hm1 : 2 ≤ 2 * k.val + 1 ∧ valid L (2 * k.val + 1 - 2) := ⟨by omega, by unfold valid big at *; omega⟩
        ihave S8 := (Entails.of_eq (inSlotV_pos d L fx v0)) $$ S8
        icases S8 with ⟨%g4, %hin4, F8⟩
        ihave S9 := (Entails.of_eq (inSlotV_pos d L fx v1)) $$ S9
        icases S9 with ⟨%g5, %hin5, F9⟩
        ihave S10 := (Entails.of_eq (outSlotV_pos d L fx hm0)) $$ S10
        icases S10 with ⟨%g6, F10, R6⟩
        ihave S11 := (Entails.of_eq (outSlotV_pos d L fx hm1)) $$ S11
        icases S11 with ⟨%g7, F11, R7⟩
        ihave HX := (Entails.of_eq (xSet_out (xP d L fx) k.val hk)) $$ HX
        icases HX with ⟨X2, X3, HX⟩
        ihave X2 := (Entails.of_eq (xP_pos d L fx v2)) $$ X2
        ihave X2 := (Entails.of_eq (in_congr d L (off_6 L k v2).symm (in_inb L _) (k4_off6_inb L k k4_h3) fx)) $$ X2
        ihave X3 := (Entails.of_eq (xP_pos d L fx v3')) $$ X3
        ihave X3 := (Entails.of_eq (in_congr d L (off_11 L k v3').symm (in_inb L _) (k4_off11_inb L k k4_h6) fx)) $$ X3
        ihave HOut := (Entails.of_eq (oSet_out (oMix d L fx k.val) k.val hk)) $$ HOut
        icases HOut with ⟨Y0, Y1, HOut⟩
        ihave Y0 := (Entails.of_eq ((oMix_ge d L fx (t := k.val) (n := 2 * k.val) (by omega)).trans (oP_pos (F := F) d L v0))) $$ Y0
        icases Y0 with ⟨%f0, Y0⟩
        ihave Y0 := (Entails.of_eq (out_congr d L (off_5 L k v0).symm (out_inb L _) (k4_off5_inb L k k4_h2) f0)) $$ Y0
        ihave Y1 := (Entails.of_eq ((oMix_ge d L fx (t := k.val) (n := 2 * k.val + 1) (by omega)).trans (oP_pos (F := F) d L v1))) $$ Y1
        icases Y1 with ⟨%f1, Y1⟩
        ihave Y1 := (Entails.of_eq (out_congr d L (off_10 L k v1).symm (out_inb L _) (k4_off10_inb L k k4_h5) f1)) $$ Y1
        sl_exec
        sl_for (laneV0 d L g4) $$ [F8_dst R6]
        case region =>
          intro (j : Fin k4_t2_loop.trips) _
          unfold laneV0
          iintro ⟨HA, %g, HB, %hl⟩
          sl_exec
          sl_step
          isplitl [HA]; · iexact HA
          iexists _; isplitl [HB]; · iexact HB
          ipureintro; exact lanes_step d L a4 a6 g4 g j _ _ hl
        · unfold laneV0
          isplitl [F8_dst]; · iexact F8_dst
          iexists _; isplitl [R6]; · iexact R6
          ipureintro; exact lanes_zero d L a4 a6 g4 _
        iintro %_ HI
        unfold laneV0
        icases HI with ⟨H4, %g6', H6, %hl6⟩
        have hl6 : Lanes d L a4 a6 g4 g6' 200 := Eq.mp (congrArg (Lanes d L a4 a6 g4 g6') trips2) hl6
        sl_exec
        sl_for (laneV1 d L g5) $$ [F9_dst R7]
        case region =>
          intro (j : Fin k4_t3_loop.trips) _
          unfold laneV1
          iintro ⟨HA, %g, HB, %hl⟩
          sl_exec
          sl_step
          isplitl [HA]; · iexact HA
          iexists _; isplitl [HB]; · iexact HB
          ipureintro; exact lanes_step' d L a5 a7 g5 g j _ _ hl
        · unfold laneV1
          isplitl [F9_dst]; · iexact F9_dst
          iexists _; isplitl [R7]; · iexact R7
          ipureintro; exact lanes_zero d L a5 a7 g5 _
        iintro %_ HI
        unfold laneV1
        icases HI with ⟨H5, %g7', H7, %hl7⟩
        have hl7 : Lanes d L a5 a7 g5 g7' 200 := Eq.mp (congrArg (Lanes d L a5 a7 g5 g7') trips3) hl7
        sl_exec
        sl_step
        isplitr; · iexact Hmw
        isplitl [HO]
        · iexists _; isplitr
          rotate_left
          · iexact HO
          ipureintro; intro p hp
          rcases Finset.mem_insert.mp hp with rfl | hp
          · exact .inr rfl
          rcases Finset.mem_insert.mp hp with rfl | hp
          · exact .inr rfl
          rcases Finset.mem_insert.mp hp with rfl | hp
          · exact .inr rfl
          rcases Finset.mem_insert.mp hp with rfl | hp
          · exact .inr rfl
          exact hW' p hp
        isplitl [HX F8_src F9_src]
        · iapply (Entails.of_eq (xSet_in (xP d L fx) k.val hk).symm)
          isplitl [F8_src]; · iapply (Entails.of_eq (xP_pos d L fx v0).symm); iexact F8_src
          isplitl [F9_src]; · iapply (Entails.of_eq (xP_pos d L fx v1).symm); iexact F9_src
          iexact HX
        isplitl [HOut F10_dst F11_dst]
        · iapply (Entails.of_eq (oSet_in (oMix d L fx (k.val + 1)) k.val hk (by omega)).symm)
          isplitl [F10_dst]; · iapply (Entails.of_eq ((oMix_lt d L fx (t := k.val + 1) (n := 2 * k.val - 2) (by omega)).trans (oQ_pos d L fx hm0.2)).symm); iexact F10_dst
          isplitl [F11_dst]
          · iapply (Entails.of_eq ((oMix_lt d L fx (t := k.val + 1) (n := 2 * k.val - 1) (by omega)).trans (oQ_pos d L fx (n := 2 * k.val - 1) (by have := hm1.2; rwa [show 2 * k.val + 1 - 2 = 2 * k.val - 1 by omega] at this))).symm)
            iapply (Entails.of_eq (congrArg (oqPiece d L fx) (show 2 * k.val + 1 - 2 = 2 * k.val - 1 by omega))); iexact F11_dst
          iapply (Entails.of_eq (oMix_core d L fx k.val)); iexact HOut
        isplitl [F8]
        · iapply (Entails.of_eq (congrArg (inSlotV d L fx a4 cc4_scratch4.sem) (show 2 * k.val + 2 = 2 * (k.val + 1) by ring)))
          iapply (fl_inV d L fx (off_6 L k v2) (k4_off6_inb L k k4_h3) v2 a4 cc4_scratch4.sem); iexists _, _
          isplitr
          rotate_left
          · iexact F8
          ipureintro; intro y; rfl
        isplitl [F10 H6]
        · iapply (Entails.of_eq (congrArg (outSlotV d L fx a6 cc4_scratch6.sem) (show 2 * k.val + 2 = 2 * (k.val + 1) by ring)))
          iapply (fl_outV d L fx (off_5 L k v0) (k4_off5_inb L k k4_h2) v0 a4 a6 cc4_scratch6.sem f0 g4 g6' hl6 hin4); iexists _
          isplitr
          rotate_left
          · isplitl [F10]; · iexact F10
            iexact H6
          ipureintro; intro y; rfl
        isplitl [F9]
        · iapply (Entails.of_eq (congrArg (inSlotV d L fx a5 cc4_scratch5.sem) (show 2 * k.val + 3 = 2 * (k.val + 1) + 1 by ring)))
          iapply (fl_inV d L fx (off_11 L k v3') (k4_off11_inb L k k4_h6) v3' a5 cc4_scratch5.sem); iexists _, _
          isplitr
          rotate_left
          · iexact F9
          ipureintro; intro y; rfl
        · iapply (Entails.of_eq (congrArg (outSlotV d L fx a7 cc4_scratch7.sem) (show 2 * k.val + 1 + 2 = 2 * (k.val + 1) + 1 by ring)))
          iapply (fl_outV d L fx (off_10 L k v1) (k4_off10_inb L k k4_h5) v1 a5 a7 cc4_scratch7.sem f1 g5 g7' hl7 hin5); iexists _
          isplitr
          rotate_left
          · isplitl [F11]; · iexact F11
            iexact H7
          ipureintro; intro y; rfl
      · by_cases h6 : k.val = 6
        · have hb : ¬ big L := fun hb => v3 (Or.inr ⟨by omega, hb⟩)
          -- trip 6 of a tile with fifteen pieces: no sixteenth piece to fetch
          have k4_h1 : k4_cond1 k = 1#1 := (cond1_iff k).mpr (by omega)
          have k4_h2 : k4_cond2 L k = 1#1 := cond2_iff L k
          have k4_h3 : k4_cond3 L k = 1#1 := (cond3_iff L k).mpr (by omega)
          have k4_h4 : k4_cond4 k = 1#1 := (cond4_iff k).mpr (by omega)
          have k4_h5 : k4_cond5 L k = 1#1 := (cond5_iff L k).mpr (by first | (unfold valid big at *; omega) | (unfold big at *; omega) | omega)
          have k4_h6 : ¬ k4_cond6 L k = 1#1 := fun h => absurd ((cond6_iff L k).mp h) (by first | (unfold valid big at *; omega) | (unfold big at *; omega) | omega)
          have v0 : valid L (2 * k.val) := by unfold valid big at *; omega
          have v1 : valid L (2 * k.val + 1) := by unfold valid big at *; omega
          have v2 : valid L (2 * k.val + 2) := by unfold valid big at *; omega
          have v3' : ¬ valid L (2 * k.val + 3) := by unfold valid big at *; omega
          have hm0 : 2 ≤ 2 * k.val ∧ valid L (2 * k.val - 2) := ⟨by omega, by unfold valid big at *; omega⟩
          have hm1 : 2 ≤ 2 * k.val + 1 ∧ valid L (2 * k.val + 1 - 2) := ⟨by omega, by unfold valid big at *; omega⟩
          ihave S8 := (Entails.of_eq (inSlotV_pos d L fx v0)) $$ S8
          icases S8 with ⟨%g4, %hin4, F8⟩
          ihave S9 := (Entails.of_eq (inSlotV_pos d L fx v1)) $$ S9
          icases S9 with ⟨%g5, %hin5, F9⟩
          ihave S10 := (Entails.of_eq (outSlotV_pos d L fx hm0)) $$ S10
          icases S10 with ⟨%g6, F10, R6⟩
          ihave S11 := (Entails.of_eq (outSlotV_pos d L fx hm1)) $$ S11
          icases S11 with ⟨%g7, F11, R7⟩
          ihave HX := (Entails.of_eq (xSet_out (xP d L fx) k.val hk)) $$ HX
          icases HX with ⟨X2, -, HX⟩
          ihave X2 := (Entails.of_eq (xP_pos d L fx v2)) $$ X2
          ihave X2 := (Entails.of_eq (in_congr d L (off_6 L k v2).symm (in_inb L _) (k4_off6_inb L k k4_h3) fx)) $$ X2
          ihave HOut := (Entails.of_eq (oSet_out (oMix d L fx k.val) k.val hk)) $$ HOut
          icases HOut with ⟨Y0, Y1, HOut⟩
          ihave Y0 := (Entails.of_eq ((oMix_ge d L fx (t := k.val) (n := 2 * k.val) (by omega)).trans (oP_pos (F := F) d L v0))) $$ Y0
          icases Y0 with ⟨%f0, Y0⟩
          ihave Y0 := (Entails.of_eq (out_congr d L (off_5 L k v0).symm (out_inb L _) (k4_off5_inb L k k4_h2) f0)) $$ Y0
          ihave Y1 := (Entails.of_eq ((oMix_ge d L fx (t := k.val) (n := 2 * k.val + 1) (by omega)).trans (oP_pos (F := F) d L v1))) $$ Y1
          icases Y1 with ⟨%f1, Y1⟩
          ihave Y1 := (Entails.of_eq (out_congr d L (off_10 L k v1).symm (out_inb L _) (k4_off10_inb L k k4_h5) f1)) $$ Y1
          sl_exec
          sl_for (laneV0 d L g4) $$ [F8_dst R6]
          case region =>
            intro (j : Fin k4_t2_loop.trips) _
            unfold laneV0
            iintro ⟨HA, %g, HB, %hl⟩
            sl_exec
            sl_step
            isplitl [HA]; · iexact HA
            iexists _; isplitl [HB]; · iexact HB
            ipureintro; exact lanes_step d L a4 a6 g4 g j _ _ hl
          · unfold laneV0
            isplitl [F8_dst]; · iexact F8_dst
            iexists _; isplitl [R6]; · iexact R6
            ipureintro; exact lanes_zero d L a4 a6 g4 _
          iintro %_ HI
          unfold laneV0
          icases HI with ⟨H4, %g6', H6, %hl6⟩
          have hl6 : Lanes d L a4 a6 g4 g6' 200 := Eq.mp (congrArg (Lanes d L a4 a6 g4 g6') trips2) hl6
          sl_exec
          sl_for (laneV1 d L g5) $$ [F9_dst R7]
          case region =>
            intro (j : Fin k4_t3_loop.trips) _
            unfold laneV1
            iintro ⟨HA, %g, HB, %hl⟩
            sl_exec
            sl_step
            isplitl [HA]; · iexact HA
            iexists _; isplitl [HB]; · iexact HB
            ipureintro; exact lanes_step' d L a5 a7 g5 g j _ _ hl
          · unfold laneV1
            isplitl [F9_dst]; · iexact F9_dst
            iexists _; isplitl [R7]; · iexact R7
            ipureintro; exact lanes_zero d L a5 a7 g5 _
          iintro %_ HI
          unfold laneV1
          icases HI with ⟨H5, %g7', H7, %hl7⟩
          have hl7 : Lanes d L a5 a7 g5 g7' 200 := Eq.mp (congrArg (Lanes d L a5 a7 g5 g7') trips3) hl7
          sl_exec
          sl_step
          isplitr; · iexact Hmw
          isplitl [HO]
          · iexists _; isplitr
            rotate_left
            · iexact HO
            ipureintro; intro p hp
            rcases Finset.mem_insert.mp hp with rfl | hp
            · exact .inr rfl
            rcases Finset.mem_insert.mp hp with rfl | hp
            · exact .inr rfl
            rcases Finset.mem_insert.mp hp with rfl | hp
            · exact .inr rfl
            rcases Finset.mem_insert.mp hp with rfl | hp
            · exact .inr rfl
            exact hW' p hp
          isplitl [HX F8_src F9_src]
          · iapply (Entails.of_eq (xSet_in (xP d L fx) k.val hk).symm)
            isplitl [F8_src]; · iapply (Entails.of_eq (xP_pos d L fx v0).symm); iexact F8_src
            isplitl [F9_src]; · iapply (Entails.of_eq (xP_pos d L fx v1).symm); iexact F9_src
            iexact HX
          isplitl [HOut F10_dst F11_dst]
          · iapply (Entails.of_eq (oSet_in (oMix d L fx (k.val + 1)) k.val hk (by omega)).symm)
            isplitl [F10_dst]; · iapply (Entails.of_eq ((oMix_lt d L fx (t := k.val + 1) (n := 2 * k.val - 2) (by omega)).trans (oQ_pos d L fx hm0.2)).symm); iexact F10_dst
            isplitl [F11_dst]
            · iapply (Entails.of_eq ((oMix_lt d L fx (t := k.val + 1) (n := 2 * k.val - 1) (by omega)).trans (oQ_pos d L fx (n := 2 * k.val - 1) (by have := hm1.2; rwa [show 2 * k.val + 1 - 2 = 2 * k.val - 1 by omega] at this))).symm)
              iapply (Entails.of_eq (congrArg (oqPiece d L fx) (show 2 * k.val + 1 - 2 = 2 * k.val - 1 by omega))); iexact F11_dst
            iapply (Entails.of_eq (oMix_core d L fx k.val)); iexact HOut
          isplitl [F8]
          · iapply (Entails.of_eq (congrArg (inSlotV d L fx a4 cc4_scratch4.sem) (show 2 * k.val + 2 = 2 * (k.val + 1) by ring)))
            iapply (fl_inV d L fx (off_6 L k v2) (k4_off6_inb L k k4_h3) v2 a4 cc4_scratch4.sem); iexists _, _
            isplitr
            rotate_left
            · iexact F8
            ipureintro; intro y; rfl
          isplitl [F10 H6]
          · iapply (Entails.of_eq (congrArg (outSlotV d L fx a6 cc4_scratch6.sem) (show 2 * k.val + 2 = 2 * (k.val + 1) by ring)))
            iapply (fl_outV d L fx (off_5 L k v0) (k4_off5_inb L k k4_h2) v0 a4 a6 cc4_scratch6.sem f0 g4 g6' hl6 hin4); iexists _
            isplitr
            rotate_left
            · isplitl [F10]; · iexact F10
              iexact H6
            ipureintro; intro y; rfl
          isplitl [H5 F9]
          · iapply (Entails.of_eq (congrArg (inSlotV d L fx a5 cc4_scratch5.sem) (show 2 * k.val + 3 = 2 * (k.val + 1) + 1 by ring)))
            iapply (Entails.of_eq (inSlotV_neg d L fx v3').symm)
            isplitl [H5]; · iexists _; iexact H5
            iexact F9
          · iapply (Entails.of_eq (congrArg (outSlotV d L fx a7 cc4_scratch7.sem) (show 2 * k.val + 1 + 2 = 2 * (k.val + 1) + 1 by ring)))
            iapply (fl_outV d L fx (off_10 L k v1) (k4_off10_inb L k k4_h5) v1 a5 a7 cc4_scratch7.sem f1 g5 g7' hl7 hin5); iexists _
            isplitr
            rotate_left
            · isplitl [F11]; · iexact F11
              iexact H7
            ipureintro; intro y; rfl
        · have h7 : k.val = 7 := by unfold valid at v3; omega
          by_cases hb : big L
          · -- the last trip of a tile with sixteen pieces: nothing more to fetch
            have k4_h1 : k4_cond1 k = 1#1 := (cond1_iff k).mpr (by omega)
            have k4_h2 : k4_cond2 L k = 1#1 := cond2_iff L k
            have k4_h3 : ¬ k4_cond3 L k = 1#1 := fun h => absurd ((cond3_iff L k).mp h) (by omega)
            have k4_h4 : k4_cond4 k = 1#1 := (cond4_iff k).mpr (by omega)
            have k4_h5 : k4_cond5 L k = 1#1 := (cond5_iff L k).mpr (by first | (unfold valid big at *; omega) | (unfold big at *; omega) | omega)
            have k4_h6 : ¬ k4_cond6 L k = 1#1 := fun h => absurd ((cond6_iff L k).mp h) (by first | (unfold valid big at *; omega) | (unfold big at *; omega) | omega)
            have v0 : valid L (2 * k.val) := by unfold valid big at *; omega
            have v1 : valid L (2 * k.val + 1) := by unfold valid big at *; omega
            have v2 : ¬ valid L (2 * k.val + 2) := by unfold valid big at *; omega
            have v3' : ¬ valid L (2 * k.val + 3) := by unfold valid big at *; omega
            have hm0 : 2 ≤ 2 * k.val ∧ valid L (2 * k.val - 2) := ⟨by omega, by unfold valid big at *; omega⟩
            have hm1 : 2 ≤ 2 * k.val + 1 ∧ valid L (2 * k.val + 1 - 2) := ⟨by omega, by unfold valid big at *; omega⟩
            ihave S8 := (Entails.of_eq (inSlotV_pos d L fx v0)) $$ S8
            icases S8 with ⟨%g4, %hin4, F8⟩
            ihave S9 := (Entails.of_eq (inSlotV_pos d L fx v1)) $$ S9
            icases S9 with ⟨%g5, %hin5, F9⟩
            ihave S10 := (Entails.of_eq (outSlotV_pos d L fx hm0)) $$ S10
            icases S10 with ⟨%g6, F10, R6⟩
            ihave S11 := (Entails.of_eq (outSlotV_pos d L fx hm1)) $$ S11
            icases S11 with ⟨%g7, F11, R7⟩
            ihave HX := (Entails.of_eq (xSet_out (xP d L fx) k.val hk)) $$ HX
            icases HX with ⟨-, -, HX⟩
            ihave HOut := (Entails.of_eq (oSet_out (oMix d L fx k.val) k.val hk)) $$ HOut
            icases HOut with ⟨Y0, Y1, HOut⟩
            ihave Y0 := (Entails.of_eq ((oMix_ge d L fx (t := k.val) (n := 2 * k.val) (by omega)).trans (oP_pos (F := F) d L v0))) $$ Y0
            icases Y0 with ⟨%f0, Y0⟩
            ihave Y0 := (Entails.of_eq (out_congr d L (off_5 L k v0).symm (out_inb L _) (k4_off5_inb L k k4_h2) f0)) $$ Y0
            ihave Y1 := (Entails.of_eq ((oMix_ge d L fx (t := k.val) (n := 2 * k.val + 1) (by omega)).trans (oP_pos (F := F) d L v1))) $$ Y1
            icases Y1 with ⟨%f1, Y1⟩
            ihave Y1 := (Entails.of_eq (out_congr d L (off_10 L k v1).symm (out_inb L _) (k4_off10_inb L k k4_h5) f1)) $$ Y1
            sl_exec
            sl_for (laneV0 d L g4) $$ [F8_dst R6]
            case region =>
              intro (j : Fin k4_t2_loop.trips) _
              unfold laneV0
              iintro ⟨HA, %g, HB, %hl⟩
              sl_exec
              sl_step
              isplitl [HA]; · iexact HA
              iexists _; isplitl [HB]; · iexact HB
              ipureintro; exact lanes_step d L a4 a6 g4 g j _ _ hl
            · unfold laneV0
              isplitl [F8_dst]; · iexact F8_dst
              iexists _; isplitl [R6]; · iexact R6
              ipureintro; exact lanes_zero d L a4 a6 g4 _
            iintro %_ HI
            unfold laneV0
            icases HI with ⟨H4, %g6', H6, %hl6⟩
            have hl6 : Lanes d L a4 a6 g4 g6' 200 := Eq.mp (congrArg (Lanes d L a4 a6 g4 g6') trips2) hl6
            sl_exec
            sl_for (laneV1 d L g5) $$ [F9_dst R7]
            case region =>
              intro (j : Fin k4_t3_loop.trips) _
              unfold laneV1
              iintro ⟨HA, %g, HB, %hl⟩
              sl_exec
              sl_step
              isplitl [HA]; · iexact HA
              iexists _; isplitl [HB]; · iexact HB
              ipureintro; exact lanes_step' d L a5 a7 g5 g j _ _ hl
            · unfold laneV1
              isplitl [F9_dst]; · iexact F9_dst
              iexists _; isplitl [R7]; · iexact R7
              ipureintro; exact lanes_zero d L a5 a7 g5 _
            iintro %_ HI
            unfold laneV1
            icases HI with ⟨H5, %g7', H7, %hl7⟩
            have hl7 : Lanes d L a5 a7 g5 g7' 200 := Eq.mp (congrArg (Lanes d L a5 a7 g5 g7') trips3) hl7
            sl_exec
            sl_step
            isplitr; · iexact Hmw
            isplitl [HO]
            · iexists _; isplitr
              rotate_left
              · iexact HO
              ipureintro; intro p hp
              rcases Finset.mem_insert.mp hp with rfl | hp
              · exact .inr rfl
              rcases Finset.mem_insert.mp hp with rfl | hp
              · exact .inr rfl
              rcases Finset.mem_insert.mp hp with rfl | hp
              · exact .inr rfl
              rcases Finset.mem_insert.mp hp with rfl | hp
              · exact .inr rfl
              exact hW' p hp
            isplitl [HX F8_src F9_src]
            · iapply (Entails.of_eq (xSet_in (xP d L fx) k.val hk).symm)
              isplitl [F8_src]; · iapply (Entails.of_eq (xP_pos d L fx v0).symm); iexact F8_src
              isplitl [F9_src]; · iapply (Entails.of_eq (xP_pos d L fx v1).symm); iexact F9_src
              iexact HX
            isplitl [HOut F10_dst F11_dst]
            · iapply (Entails.of_eq (oSet_in (oMix d L fx (k.val + 1)) k.val hk (by omega)).symm)
              isplitl [F10_dst]; · iapply (Entails.of_eq ((oMix_lt d L fx (t := k.val + 1) (n := 2 * k.val - 2) (by omega)).trans (oQ_pos d L fx hm0.2)).symm); iexact F10_dst
              isplitl [F11_dst]
              · iapply (Entails.of_eq ((oMix_lt d L fx (t := k.val + 1) (n := 2 * k.val - 1) (by omega)).trans (oQ_pos d L fx (n := 2 * k.val - 1) (by have := hm1.2; rwa [show 2 * k.val + 1 - 2 = 2 * k.val - 1 by omega] at this))).symm)
                iapply (Entails.of_eq (congrArg (oqPiece d L fx) (show 2 * k.val + 1 - 2 = 2 * k.val - 1 by omega))); iexact F11_dst
              iapply (Entails.of_eq (oMix_core d L fx k.val)); iexact HOut
            isplitl [H4 F8]
            · iapply (Entails.of_eq (congrArg (inSlotV d L fx a4 cc4_scratch4.sem) (show 2 * k.val + 2 = 2 * (k.val + 1) by ring)))
              iapply (Entails.of_eq (inSlotV_neg d L fx v2).symm)
              isplitl [H4]; · iexists _; iexact H4
              iexact F8
            isplitl [F10 H6]
            · iapply (Entails.of_eq (congrArg (outSlotV d L fx a6 cc4_scratch6.sem) (show 2 * k.val + 2 = 2 * (k.val + 1) by ring)))
              iapply (fl_outV d L fx (off_5 L k v0) (k4_off5_inb L k k4_h2) v0 a4 a6 cc4_scratch6.sem f0 g4 g6' hl6 hin4); iexists _
              isplitr
              rotate_left
              · isplitl [F10]; · iexact F10
                iexact H6
              ipureintro; intro y; rfl
            isplitl [H5 F9]
            · iapply (Entails.of_eq (congrArg (inSlotV d L fx a5 cc4_scratch5.sem) (show 2 * k.val + 3 = 2 * (k.val + 1) + 1 by ring)))
              iapply (Entails.of_eq (inSlotV_neg d L fx v3').symm)
              isplitl [H5]; · iexists _; iexact H5
              iexact F9
            · iapply (Entails.of_eq (congrArg (outSlotV d L fx a7 cc4_scratch7.sem) (show 2 * k.val + 1 + 2 = 2 * (k.val + 1) + 1 by ring)))
              iapply (fl_outV d L fx (off_10 L k v1) (k4_off10_inb L k k4_h5) v1 a5 a7 cc4_scratch7.sem f1 g5 g7' hl7 hin5); iexists _
              isplitr
              rotate_left
              · isplitl [F11]; · iexact F11
                iexact H7
              ipureintro; intro y; rfl
          · -- the last trip of a tile with fifteen pieces: the second slot only drains
            have k4_h1 : k4_cond1 k = 1#1 := (cond1_iff k).mpr (by omega)
            have k4_h2 : k4_cond2 L k = 1#1 := cond2_iff L k
            have k4_h3 : ¬ k4_cond3 L k = 1#1 := fun h => absurd ((cond3_iff L k).mp h) (by omega)
            have k4_h4 : k4_cond4 k = 1#1 := (cond4_iff k).mpr (by omega)
            have k4_h5 : ¬ k4_cond5 L k = 1#1 := fun h => absurd ((cond5_iff L k).mp h) (by first | (unfold valid big at *; omega) | (unfold big at *; omega) | omega)
            have k4_h6 : ¬ k4_cond6 L k = 1#1 := fun h => absurd ((cond6_iff L k).mp h) (by first | (unfold valid big at *; omega) | (unfold big at *; omega) | omega)
            have v0 : valid L (2 * k.val) := by unfold valid big at *; omega
            have v1 : ¬ valid L (2 * k.val + 1) := by unfold valid big at *; omega
            have v2 : ¬ valid L (2 * k.val + 2) := by unfold valid big at *; omega
            have v3' : ¬ valid L (2 * k.val + 3) := by unfold valid big at *; omega
            have hm0 : 2 ≤ 2 * k.val ∧ valid L (2 * k.val - 2) := ⟨by omega, by unfold valid big at *; omega⟩
            have hm1 : 2 ≤ 2 * k.val + 1 ∧ valid L (2 * k.val + 1 - 2) := ⟨by omega, by unfold valid big at *; omega⟩
            ihave S8 := (Entails.of_eq (inSlotV_pos d L fx v0)) $$ S8
            icases S8 with ⟨%g4, %hin4, F8⟩
            ihave S9 := (Entails.of_eq (inSlotV_neg d L fx v1)) $$ S9
            icases S9 with ⟨⟨%g5, H5⟩, F9⟩
            ihave S10 := (Entails.of_eq (outSlotV_pos d L fx hm0)) $$ S10
            icases S10 with ⟨%g6, F10, R6⟩
            ihave S11 := (Entails.of_eq (outSlotV_pos d L fx hm1)) $$ S11
            icases S11 with ⟨%g7, F11, R7⟩
            ihave HX := (Entails.of_eq (xSet_out (xP d L fx) k.val hk)) $$ HX
            icases HX with ⟨-, -, HX⟩
            ihave HOut := (Entails.of_eq (oSet_out (oMix d L fx k.val) k.val hk)) $$ HOut
            icases HOut with ⟨Y0, -, HOut⟩
            ihave Y0 := (Entails.of_eq ((oMix_ge d L fx (t := k.val) (n := 2 * k.val) (by omega)).trans (oP_pos (F := F) d L v0))) $$ Y0
            icases Y0 with ⟨%f0, Y0⟩
            ihave Y0 := (Entails.of_eq (out_congr d L (off_5 L k v0).symm (out_inb L _) (k4_off5_inb L k k4_h2) f0)) $$ Y0
            sl_exec
            sl_for (laneV0 d L g4) $$ [F8_dst R6]
            case region =>
              intro (j : Fin k4_t2_loop.trips) _
              unfold laneV0
              iintro ⟨HA, %g, HB, %hl⟩
              sl_exec
              sl_step
              isplitl [HA]; · iexact HA
              iexists _; isplitl [HB]; · iexact HB
              ipureintro; exact lanes_step d L a4 a6 g4 g j _ _ hl
            · unfold laneV0
              isplitl [F8_dst]; · iexact F8_dst
              iexists _; isplitl [R6]; · iexact R6
              ipureintro; exact lanes_zero d L a4 a6 g4 _
            iintro %_ HI
            unfold laneV0
            icases HI with ⟨H4, %g6', H6, %hl6⟩
            have hl6 : Lanes d L a4 a6 g4 g6' 200 := Eq.mp (congrArg (Lanes d L a4 a6 g4 g6') trips2) hl6
            sl_exec
            sl_step
            isplitr; · iexact Hmw
            isplitl [HO]
            · iexists _; isplitr
              rotate_left
              · iexact HO
              ipureintro; intro p hp
              rcases Finset.mem_insert.mp hp with rfl | hp
              · exact .inr rfl
              rcases Finset.mem_insert.mp hp with rfl | hp
              · exact .inr rfl
              rcases Finset.mem_insert.mp hp with rfl | hp
              · exact .inr rfl
              exact hW' p hp
            isplitl [HX F8_src]
            · iapply (Entails.of_eq (xSet_in (xP d L fx) k.val hk).symm)
              isplitl [F8_src]; · iapply (Entails.of_eq (xP_pos d L fx v0).symm); iexact F8_src
              isplitr; · iapply (Entails.of_eq (xP_neg d L fx v1).symm); iempintro
              iexact HX
            isplitl [HOut F10_dst F11_dst]
            · iapply (Entails.of_eq (oSet_in (oMix d L fx (k.val + 1)) k.val hk (by omega)).symm)
              isplitl [F10_dst]; · iapply (Entails.of_eq ((oMix_lt d L fx (t := k.val + 1) (n := 2 * k.val - 2) (by omega)).trans (oQ_pos d L fx hm0.2)).symm); iexact F10_dst
              isplitl [F11_dst]
              · iapply (Entails.of_eq ((oMix_lt d L fx (t := k.val + 1) (n := 2 * k.val - 1) (by omega)).trans (oQ_pos d L fx (n := 2 * k.val - 1) (by have := hm1.2; rwa [show 2 * k.val + 1 - 2 = 2 * k.val - 1 by omega] at this))).symm)
                iapply (Entails.of_eq (congrArg (oqPiece d L fx) (show 2 * k.val + 1 - 2 = 2 * k.val - 1 by omega))); iexact F11_dst
              iapply (Entails.of_eq (oMix_core d L fx k.val)); iexact HOut
            isplitl [H4 F8]
            · iapply (Entails.of_eq (congrArg (inSlotV d L fx a4 cc4_scratch4.sem) (show 2 * k.val + 2 = 2 * (k.val + 1) by ring)))
              iapply (Entails.of_eq (inSlotV_neg d L fx v2).symm)
              isplitl [H4]; · iexists _; iexact H4
              iexact F8
            isplitl [F10 H6]
            · iapply (Entails.of_eq (congrArg (outSlotV d L fx a6 cc4_scratch6.sem) (show 2 * k.val + 2 = 2 * (k.val + 1) by ring)))
              iapply (fl_outV d L fx (off_5 L k v0) (k4_off5_inb L k k4_h2) v0 a4 a6 cc4_scratch6.sem f0 g4 g6' hl6 hin4); iexists _
              isplitr
              rotate_left
              · isplitl [F10]; · iexact F10
                iexact H6
              ipureintro; intro y; rfl
            isplitl [H5 F9]
            · iapply (Entails.of_eq (congrArg (inSlotV d L fx a5 cc4_scratch5.sem) (show 2 * k.val + 3 = 2 * (k.val + 1) + 1 by ring)))
              iapply (Entails.of_eq (inSlotV_neg d L fx v3').symm)
              isplitl [H5]; · iexists _; iexact H5
              iexact F9
            · iapply (Entails.of_eq (outSlotV_neg d L fx (m := 2 * (k.val + 1) + 1) (by intro h; apply v1; have := h.2; rwa [show 2 * (k.val + 1) + 1 - 2 = 2 * k.val + 1 by omega] at this)).symm)
              isplitl [R7]; · iexists _; iexact R7
              iexact F11
    · have hk0 : k.val = 0 := by omega
      -- the first trip: nothing to drain
      have k4_h1 : ¬ k4_cond1 k = 1#1 := fun h => absurd ((cond1_iff k).mp h) (by omega)
      have k4_h2 : k4_cond2 L k = 1#1 := cond2_iff L k
      have k4_h3 : k4_cond3 L k = 1#1 := (cond3_iff L k).mpr (by omega)
      have k4_h4 : ¬ k4_cond4 k = 1#1 := fun h => absurd ((cond4_iff k).mp h) (by omega)
      have k4_h5 : k4_cond5 L k = 1#1 := (cond5_iff L k).mpr (by first | (unfold valid big at *; omega) | (unfold big at *; omega) | omega)
      have k4_h6 : k4_cond6 L k = 1#1 := (cond6_iff L k).mpr (by first | (unfold valid big at *; omega) | (unfold big at *; omega) | omega)
      have v0 : valid L (2 * k.val) := by unfold valid big at *; omega
      have v1 : valid L (2 * k.val + 1) := by unfold valid big at *; omega
      have v2 : valid L (2 * k.val + 2) := by unfold valid big at *; omega
      have v3' : valid L (2 * k.val + 3) := by unfold valid big at *; omega
      have hm0 : ¬ (2 ≤ 2 * k.val ∧ valid L (2 * k.val - 2)) := by omega
      have hm1 : ¬ (2 ≤ 2 * k.val + 1 ∧ valid L (2 * k.val + 1 - 2)) := by omega
      ihave S8 := (Entails.of_eq (inSlotV_pos d L fx v0)) $$ S8
      icases S8 with ⟨%g4, %hin4, F8⟩
      ihave S9 := (Entails.of_eq (inSlotV_pos d L fx v1)) $$ S9
      icases S9 with ⟨%g5, %hin5, F9⟩
      ihave S10 := (Entails.of_eq (outSlotV_neg d L fx hm0)) $$ S10
      icases S10 with ⟨⟨%g6, R6⟩, F10⟩
      ihave S11 := (Entails.of_eq (outSlotV_neg d L fx hm1)) $$ S11
      icases S11 with ⟨⟨%g7, R7⟩, F11⟩
      ihave HX := (Entails.of_eq (xSet_out (xP d L fx) k.val hk)) $$ HX
      icases HX with ⟨X2, X3, HX⟩
      ihave X2 := (Entails.of_eq (xP_pos d L fx v2)) $$ X2
      ihave X2 := (Entails.of_eq (in_congr d L (off_6 L k v2).symm (in_inb L _) (k4_off6_inb L k k4_h3) fx)) $$ X2
      ihave X3 := (Entails.of_eq (xP_pos d L fx v3')) $$ X3
      ihave X3 := (Entails.of_eq (in_congr d L (off_11 L k v3').symm (in_inb L _) (k4_off11_inb L k k4_h6) fx)) $$ X3
      ihave HOut := (Entails.of_eq (oSet_out (oMix d L fx k.val) k.val hk)) $$ HOut
      icases HOut with ⟨Y0, Y1, HOut⟩
      ihave Y0 := (Entails.of_eq ((oMix_ge d L fx (t := k.val) (n := 2 * k.val) (by omega)).trans (oP_pos (F := F) d L v0))) $$ Y0
      icases Y0 with ⟨%f0, Y0⟩
      ihave Y0 := (Entails.of_eq (out_congr d L (off_5 L k v0).symm (out_inb L _) (k4_off5_inb L k k4_h2) f0)) $$ Y0
      ihave Y1 := (Entails.of_eq ((oMix_ge d L fx (t := k.val) (n := 2 * k.val + 1) (by omega)).trans (oP_pos (F := F) d L v1))) $$ Y1
      icases Y1 with ⟨%f1, Y1⟩
      ihave Y1 := (Entails.of_eq (out_congr d L (off_10 L k v1).symm (out_inb L _) (k4_off10_inb L k k4_h5) f1)) $$ Y1
      sl_exec
      sl_for (laneV0 d L g4) $$ [F8_dst R6]
      case region =>
        intro (j : Fin k4_t2_loop.trips) _
        unfold laneV0
        iintro ⟨HA, %g, HB, %hl⟩
        sl_exec
        sl_step
        isplitl [HA]; · iexact HA
        iexists _; isplitl [HB]; · iexact HB
        ipureintro; exact lanes_step d L a4 a6 g4 g j _ _ hl
      · unfold laneV0
        isplitl [F8_dst]; · iexact F8_dst
        iexists _; isplitl [R6]; · iexact R6
        ipureintro; exact lanes_zero d L a4 a6 g4 _
      iintro %_ HI
      unfold laneV0
      icases HI with ⟨H4, %g6', H6, %hl6⟩
      have hl6 : Lanes d L a4 a6 g4 g6' 200 := Eq.mp (congrArg (Lanes d L a4 a6 g4 g6') trips2) hl6
      sl_exec
      sl_for (laneV1 d L g5) $$ [F9_dst R7]
      case region =>
        intro (j : Fin k4_t3_loop.trips) _
        unfold laneV1
        iintro ⟨HA, %g, HB, %hl⟩
        sl_exec
        sl_step
        isplitl [HA]; · iexact HA
        iexists _; isplitl [HB]; · iexact HB
        ipureintro; exact lanes_step' d L a5 a7 g5 g j _ _ hl
      · unfold laneV1
        isplitl [F9_dst]; · iexact F9_dst
        iexists _; isplitl [R7]; · iexact R7
        ipureintro; exact lanes_zero d L a5 a7 g5 _
      iintro %_ HI
      unfold laneV1
      icases HI with ⟨H5, %g7', H7, %hl7⟩
      have hl7 : Lanes d L a5 a7 g5 g7' 200 := Eq.mp (congrArg (Lanes d L a5 a7 g5 g7') trips3) hl7
      sl_exec
      sl_step
      isplitr; · iexact Hmw
      isplitl [HO]
      · iexists _; isplitr
        rotate_left
        · iexact HO
        ipureintro; intro p hp
        rcases Finset.mem_insert.mp hp with rfl | hp
        · exact .inr rfl
        rcases Finset.mem_insert.mp hp with rfl | hp
        · exact .inr rfl
        exact hW' p hp
      isplitl [HX F8_src F9_src]
      · iapply (Entails.of_eq (xSet_in (xP d L fx) k.val hk).symm)
        isplitl [F8_src]; · iapply (Entails.of_eq (xP_pos d L fx v0).symm); iexact F8_src
        isplitl [F9_src]; · iapply (Entails.of_eq (xP_pos d L fx v1).symm); iexact F9_src
        iexact HX
      isplitl [HOut]
      · iapply (Entails.of_eq (congrArg (fun s => bigSep s (oMix d L fx (k.val + 1))) (show oCore k.val = oSet (k.val + 1) by rw [hk0]; decide)))
        iapply (Entails.of_eq (oMix_core d L fx k.val)); iexact HOut
      isplitl [F8]
      · iapply (Entails.of_eq (congrArg (inSlotV d L fx a4 cc4_scratch4.sem) (show 2 * k.val + 2 = 2 * (k.val + 1) by ring)))
        iapply (fl_inV d L fx (off_6 L k v2) (k4_off6_inb L k k4_h3) v2 a4 cc4_scratch4.sem); iexists _, _
        isplitr
        rotate_left
        · iexact F8
        ipureintro; intro y; rfl
      isplitl [F10 H6]
      · iapply (Entails.of_eq (congrArg (outSlotV d L fx a6 cc4_scratch6.sem) (show 2 * k.val + 2 = 2 * (k.val + 1) by ring)))
        iapply (fl_outV d L fx (off_5 L k v0) (k4_off5_inb L k k4_h2) v0 a4 a6 cc4_scratch6.sem f0 g4 g6' hl6 hin4); iexists _
        isplitr
        rotate_left
        · isplitl [F10]; · iexact F10
          iexact H6
        ipureintro; intro y; rfl
      isplitl [F9]
      · iapply (Entails.of_eq (congrArg (inSlotV d L fx a5 cc4_scratch5.sem) (show 2 * k.val + 3 = 2 * (k.val + 1) + 1 by ring)))
        iapply (fl_inV d L fx (off_11 L k v3') (k4_off11_inb L k k4_h6) v3' a5 cc4_scratch5.sem); iexists _, _
        isplitr
        rotate_left
        · iexact F9
        ipureintro; intro y; rfl
      · iapply (Entails.of_eq (congrArg (outSlotV d L fx a7 cc4_scratch7.sem) (show 2 * k.val + 1 + 2 = 2 * (k.val + 1) + 1 by ring)))
        iapply (fl_outV d L fx (off_10 L k v1) (k4_off10_inb L k k4_h5) v1 a5 a7 cc4_scratch7.sem f1 g5 g7' hl7 hin5); iexists _
        isplitr
        rotate_left
        · isplitl [F11]; · iexact F11
          iexact H7
        ipureintro; intro y; rfl
  · unfold invV
    isplitr; · iexact Hmw
    isplitl [HO]
    · iexists W; isplitr
      · ipureintro; exact fun p hp => .inl hp
      · iexact HO
    isplitl [HX]; · iexact HX
    isplitl [HOut]; · iapply (Entails.of_eq (oMix_zero d L fx).symm); iexact HOut
    isplitl [S8]; · iexact S8
    isplitl [H6 Hs10]
    · rw [outSlotV_neg d L fx (by omega)]; isplitl [H6]; · iexists _; iexact H6
      iexact Hs10
    isplitl [S9]; · iexact S9
    rw [outSlotV_neg d L fx (by omega)]; isplitl [H7]; · iexists _; iexact H7
    iexact Hs11
  iintro %acc' HI
  ihave HI := (Entails.of_eq (congrArg (fun t => invV d L O W fx t acc') trips1)) $$ HI
  unfold invV
  icases HI with ⟨-, ⟨%W', %hW', HO⟩, HX, HOut, S8, S10, S9, S11⟩
  have nv16 : ¬ valid L (2 * 8) := by unfold valid; omega
  have nv17 : ¬ valid L (2 * 8 + 1) := by unfold valid; omega
  have hm14 : 2 ≤ 2 * 8 ∧ valid L (2 * 8 - 2) := ⟨by omega, Or.inl (by omega)⟩
  ihave S8 := (Entails.of_eq (inSlotV_neg d L fx nv16)) $$ S8
  icases S8 with ⟨⟨%g4', H4⟩, Hs8⟩
  ihave S9 := (Entails.of_eq (inSlotV_neg d L fx nv17)) $$ S9
  icases S9 with ⟨⟨%g5', H5⟩, Hs9⟩
  ihave S10 := (Entails.of_eq (outSlotV_pos d L fx hm14)) $$ S10
  icases S10 with ⟨%g6', F10, R6⟩
  by_cases hb : big L
  · have k4_h8 : k4_cond8 L = 1#1 := (cond8_iff L).mpr hb
    have hm15 : 2 ≤ 2 * 8 + 1 ∧ valid L (2 * 8 + 1 - 2) := ⟨by omega, Or.inr ⟨by omega, hb⟩⟩
    ihave S11 := (Entails.of_eq (outSlotV_pos d L fx hm15)) $$ S11
    icases S11 with ⟨%g7', F11, R7⟩
    sl_exec
    sl_step
    isplitl [HX]; · iapply (xRange_end d L fx); iexact HX
    isplitl [HOut F10_dst F11_dst]
    · iapply (Entails.of_eq (oRange_end (oQ d L fx)).symm)
      isplitl [F10_dst]; · iapply (Entails.of_eq (oQ_pos d L fx hm14.2).symm); iexact F10_dst
      isplitl [F11_dst]; · iapply (Entails.of_eq (oQ_pos d L fx hm15.2).symm); iexact F11_dst
      iapply (Entails.of_eq (oMix_end d L fx)); iexact HOut
    isplitl [H4]; · iexists _; iexact H4
    isplitl [H5]; · iexists _; iexact H5
    isplitl [R6]; · iexists _; iexact R6
    isplitl [R7]; · iexists _; iexact R7
    isplitl [Hs8]; · iexact Hs8
    isplitl [Hs9]; · iexact Hs9
    isplitl [F10]; · iexact F10
    isplitl [F11]; · iexact F11
    isplitl [HO]
    · iexists _; isplitr
      rotate_left
      · iexact HO
      ipureintro; intro p hp
      rcases Finset.mem_insert.mp hp with rfl | hp
      · exact .inr rfl
      rcases Finset.mem_insert.mp hp with rfl | hp
      · exact .inr rfl
      exact hW' p hp
    iexact HR
  · have k4_h8 : ¬ k4_cond8 L = 1#1 := fun h => hb ((cond8_iff L).mp h)
    have hm15 : ¬ (2 ≤ 2 * 8 + 1 ∧ valid L (2 * 8 + 1 - 2)) := by intro h; have := h.2; unfold valid at this; omega
    ihave S11 := (Entails.of_eq (outSlotV_neg d L fx hm15)) $$ S11
    icases S11 with ⟨⟨%g7', R7⟩, F11⟩
    sl_exec
    sl_step
    isplitl [HX]; · iapply (xRange_end d L fx); iexact HX
    isplitl [HOut F10_dst]
    · iapply (Entails.of_eq (oRange_end (oQ d L fx)).symm)
      isplitl [F10_dst]; · iapply (Entails.of_eq (oQ_pos d L fx hm14.2).symm); iexact F10_dst
      isplitr; · iapply (Entails.of_eq (oQ_neg d L fx (n := 15) (by unfold valid; omega)).symm); iempintro
      iapply (Entails.of_eq (oMix_end d L fx)); iexact HOut
    isplitl [H4]; · iexists _; iexact H4
    isplitl [H5]; · iexists _; iexact H5
    isplitl [R6]; · iexists _; iexact R6
    isplitl [R7]; · iexists _; iexact R7
    isplitl [Hs8]; · iexact Hs8
    isplitl [Hs9]; · iexact Hs9
    isplitl [F10]; · iexact F10
    isplitl [F11]; · iexact F11
    isplitl [HO]
    · iexists _; isplitr
      rotate_left
      · iexact HO
      ipureintro; intro p hp
      rcases Finset.mem_insert.mp hp with rfl | hp
      · exact .inr rfl
      exact hW' p hp
    iexact HR

/-! The subcore's scoped storage: the four staging buffers and the four semaphores of this call, and the rest. -/

abbrev c8 : GSem nD τ sig := (thr d L, SemLoc.dma cc4_scratch4.sem)
abbrev c9 : GSem nD τ sig := (thr d L, SemLoc.dma cc4_scratch5.sem)
abbrev c10 : GSem nD τ sig := (thr d L, SemLoc.dma cc4_scratch6.sem)
abbrev c11 : GSem nD τ sig := (thr d L, SemLoc.dma cc4_scratch7.sem)

omit [FloatOps F] in
theorem ownSems0_V :
    (ownSems0 (thr d L) : sProp 𝕄)
      = iprop(semVal (c8 d L) 0 ∗ semVal (c9 d L) 0 ∗ semVal (c10 d L) 0 ∗ semVal (c11 d L) 0
          ∗ bigSep (((((ownCells (thr d L)).erase (c8 d L)).erase (c9 d L)).erase (c10 d L)).erase (c11 d L)) fun g => semVal g 0) := by
  unfold SparseCore.Cfg.ownSems0
  rw [SparseCore.bigSep_erase' ((mem_ownCells (g := c8 d L)).mpr ⟨rfl, by
      show (SemLoc.dma cc4_scratch4.sem : SemLoc sig).isScoped .scVector = true; decide⟩),
    SparseCore.bigSep_erase' (Finset.mem_erase.mpr ⟨fun e => absurd (Prod.mk.inj e).2 (by decide), (mem_ownCells (g := c9 d L)).mpr ⟨rfl, by
      show (SemLoc.dma cc4_scratch5.sem : SemLoc sig).isScoped .scVector = true; decide⟩⟩),
    SparseCore.bigSep_erase' (Finset.mem_erase.mpr ⟨fun e => absurd (Prod.mk.inj e).2 (by decide), Finset.mem_erase.mpr ⟨fun e => absurd (Prod.mk.inj e).2 (by decide),
      (mem_ownCells (g := c10 d L)).mpr ⟨rfl, by show (SemLoc.dma cc4_scratch6.sem : SemLoc sig).isScoped .scVector = true; decide⟩⟩⟩),
    SparseCore.bigSep_erase' (Finset.mem_erase.mpr ⟨fun e => absurd (Prod.mk.inj e).2 (by decide), Finset.mem_erase.mpr ⟨fun e => absurd (Prod.mk.inj e).2 (by decide),
      Finset.mem_erase.mpr ⟨fun e => absurd (Prod.mk.inj e).2 (by decide),
      (mem_ownCells (g := c11 d L)).mpr ⟨rfl, by show (SemLoc.dma cc4_scratch7.sem : SemLoc sig).isScoped .scVector = true; decide⟩⟩⟩⟩)]

abbrev pV (L : grid4.Coords) : Proc τ := Proc.scVector (cV L) (jV L)

omit [FloatOps F] in
theorem ownBufs_V :
    (ownBufs (thr d L) : sProp 𝕄)
      = iprop((∃ f, (thr d L).loc cc4_scratch0 ↦{fullShare} f) ∗ (∃ f, (thr d L).loc cc4_scratch1 ↦{fullShare} f)
          ∗ (∃ f, (thr d L).loc cc4_scratch2 ↦{fullShare} f) ∗ (∃ f, (thr d L).loc cc4_scratch3 ↦{fullShare} f)
          ∗ bigSep (((((ownRefs (τ := τ) (pV L)).erase ((pV L).devRef cc4_scratch0)).erase ((pV L).devRef cc4_scratch1)).erase
              ((pV L).devRef cc4_scratch2)).erase ((pV L).devRef cc4_scratch3))
              fun b => iprop(∃ f, ((d, b) : Loc nD τ sig) ↦{fullShare} f)) := by
  unfold SparseCore.Cfg.ownBufs
  refine (SparseCore.bigSep_erase' (SparseCore.Cfg.mem_ownRefs_of_owner (p := pV L) (b := (pV L).devRef cc4_scratch0) rfl)).trans ?_
  rw [SparseCore.bigSep_erase' (Finset.mem_erase.mpr ⟨fun e => absurd (Proc.devRef_injective _ e) (show (cc4_scratch1 : Ref sig .scVector) ≠ cc4_scratch0 by decide),
      SparseCore.Cfg.mem_ownRefs_of_owner (p := pV L) (b := (pV L).devRef cc4_scratch1) rfl⟩),
    SparseCore.bigSep_erase' (Finset.mem_erase.mpr ⟨fun e => absurd (Proc.devRef_injective _ e) (show (cc4_scratch2 : Ref sig .scVector) ≠ cc4_scratch1 by decide),
      Finset.mem_erase.mpr ⟨fun e => absurd (Proc.devRef_injective _ e) (show (cc4_scratch2 : Ref sig .scVector) ≠ cc4_scratch0 by decide),
      SparseCore.Cfg.mem_ownRefs_of_owner (p := pV L) (b := (pV L).devRef cc4_scratch2) rfl⟩⟩),
    SparseCore.bigSep_erase' (Finset.mem_erase.mpr ⟨fun e => absurd (Proc.devRef_injective _ e) (show (cc4_scratch3 : Ref sig .scVector) ≠ cc4_scratch2 by decide),
      Finset.mem_erase.mpr ⟨fun e => absurd (Proc.devRef_injective _ e) (show (cc4_scratch3 : Ref sig .scVector) ≠ cc4_scratch1 by decide),
      Finset.mem_erase.mpr ⟨fun e => absurd (Proc.devRef_injective _ e) (show (cc4_scratch3 : Ref sig .scVector) ≠ cc4_scratch0 by decide),
      SparseCore.Cfg.mem_ownRefs_of_owner (p := pV L) (b := (pV L).devRef cc4_scratch3) rfl⟩⟩⟩)]

/-- The rest of the subcore's scoped storage, which the task does not touch. -/
def restR : sProp 𝕄 :=
  iprop((bigSep (((((ownRefs (τ := τ) (pV L)).erase ((pV L).devRef cc4_scratch0)).erase ((pV L).devRef cc4_scratch1)).erase
              ((pV L).devRef cc4_scratch2)).erase ((pV L).devRef cc4_scratch3))
              fun b => iprop(∃ f, ((d, b) : Loc nD τ sig) ↦{fullShare} f))
      ∗ bigSep (((((ownCells (thr d L)).erase (c8 d L)).erase (c9 d L)).erase (c10 d L)).erase (c11 d L)) fun g => semVal g 0)

theorem body_pre (hO : ∀ g, O g none = 0) :
    iprop(levAts (K (F := F)).L (K (F := F)).lev ∗ emp ∗ goRes d L fx ∗ ownBufs (thr d L) ∗ ownSems0 (thr d L) ∗ owes (thr d L) O W)
      ⊢ runPre d L O W fx (restR (F := F) d L) := by
  rw [ownSems0_V, ownBufs_V]
  unfold goRes runPre restR
  iintro ⟨#Hlv, -, ⟨HX, HOut⟩, ⟨H4, H5, H6, H7, Hbufs⟩, ⟨Hs8, Hs9, Hs10, Hs11, Hsems⟩, HO⟩
  ihave Hmw := ((K (F := F)).mayWaits_none (thr := thr d L) hO) $$ Hlv
  isplitr; · iexact Hmw
  isplitl [HO]; · iexact HO
  isplitl [HX]; · iexact HX
  isplitl [HOut]; · iexact HOut
  isplitl [H4]; · iexact H4
  isplitl [H5]; · iexact H5
  isplitl [H6]; · iexact H6
  isplitl [H7]; · iexact H7
  isplitl [Hs8]; · iexact Hs8
  isplitl [Hs9]; · iexact Hs9
  isplitl [Hs10]; · iexact Hs10
  isplitl [Hs11]; · iexact Hs11
  isplitl [Hbufs]; · iexact Hbufs
  iexact Hsems

theorem body_post :
    runPost d L O W fx (restR (F := F) d L)
      ⊢ iprop(tdRes d L fx ∗ ownBufs (thr d L) ∗ ownSems0 (thr d L) ∗ ∃ W', ⌜∀ p ∈ W', p ∈ W ∨ p.2 = none⌝ ∗ owes (thr d L) O W') := by
  rw [ownSems0_V, ownBufs_V]
  unfold tdRes runPost restR
  iintro ⟨HX, HOut, H4, H5, H6, H7, Hs8, Hs9, Hs10, Hs11, HW, Hbufs, Hsems⟩
  isplitl [HX HOut]
  · isplitl [HX]; · iexact HX
    iexact HOut
  isplitl [H4 H5 H6 H7 Hbufs]
  · isplitl [H4]; · iexact H4
    isplitl [H5]; · iexact H5
    isplitl [H6]; · iexact H6
    isplitl [H7]; · iexact H7
    iexact Hbufs
  isplitl [Hs8 Hs9 Hs10 Hs11 Hsems]
  · isplitl [Hs8]; · iexact Hs8
    isplitl [Hs9]; · iexact Hs9
    isplitl [Hs10]; · iexact Hs10
    isplitl [Hs11]; · iexact Hs11
    iexact Hsems
  iexact HW

/-- The task in the launch theorem's shape: from what the call hands the tile and the subcore's scoped storage to
    what the tile hands back and the storage again. -/
theorem tile_body (hF : (K (F := F)).Facts) (hO : ∀ g, O g none = 0) :
    iprop(levAts (K (F := F)).L (K (F := F)).lev ∗ emp ∗ goRes d L fx ∗ scopedBufs (thr d L) ∗ scopedSems0 (thr d L) ∗ owes (thr d L) O W)
      ⊢ wp frame (wpE (defs₀ (F := F)) 𝒱₀ (thr d L) none) Set.univ
          (cc4_sc_group L xtW (Memref.isWhole_whole _) oW (Memref.isWhole_whole _) a4 (Memref.isWhole_whole _) a5 (Memref.isWhole_whole _)
            a6 (Memref.isWhole_whole _) a7 (Memref.isWhole_whole _) cc4_scratch4 cc4_scratch5 cc4_scratch6 cc4_scratch7)
          fun _ => iprop(tdRes d L fx ∗ scopedBufs (thr d L) ∗ scopedSems0 (thr d L)
            ∗ ∃ W', ⌜∀ p ∈ W', p ∈ W ∨ p.2 = none⌝ ∗ owes (thr d L) O W') := by
  rw [(K (F := F)).scopedBufs_V hF d (cV L) (jV L), SparseCore.Cfg.scopedSems0_V (Val := Elt F) d (cV L) (jV L)]
  exact (body_pre d L O W fx hO).trans ((tile_run d L O W fx (restR (F := F) d L)).trans (wp_mono frame _ _ fun _ => body_post d L O W fx))

end Tile

end Cert.Proof.TileK4

end
-- ==== Proof.TileBVal4.lean ====
/-
  What the staging buffers of one vector subcore hold while it copies a piece of 3200 consecutive elements of row 4 of
  the transposed argument into the flat result, read index by index. No program and no ownership here: only the contents.

  A transfer lands the piece in row 0 of an 8 × 3200 staging array (`InRow`: position (0, t) of that row holds element
  (0, pos + t) of the transposed argument, `pos` the piece's first column). A loop of 200 trips copies that row, 16 lanes
  per trip, into the first 3200 elements of a flat staging array of 25600: trip `j` reads the 1 × 16 window at columns
  [16 j, 16 j + 16) of row 0 and writes it, flattened, at elements [16 j, 16 j + 16). After `j` trips the first 16 j
  elements of the flat array are the first 16 j elements of the row (`Lanes`); a trip extends the prefix by 16
  (`lanes_step`: an element below 16 j is outside the window written and keeps its value, an element of the window reads
  the lane written there, which is the row's element at the same column). A second transfer writes the first 3200
  elements of the flat array to the piece of the result at the same `pos`; so every element of that piece of the result
  holds the element of row 4 of the transposed argument at its own position (`out_written`): the composite of the three
  index maps t ↦ (0, pos + t) ↦ (0, t) ↦ t ↦ pos + t is the identity on positions of the row.
-/
import proofs.«206869_g37898791420194_cont_8to1_b_558_20_alg».proof.Proof.TileB4Defs
import proofs.«206869_g37898791420194_cont_8to1_b_558_20_alg».proof.Proof.Spec
import Idealize.ShloMosaic.Lib.WritesUnit
import Idealize.ShloMosaic.Lib.ValueLayout

noncomputable section

namespace Cert.Proof.TileBVal4

open Cert.Proof.TileB4 Cert.Kernel Cert.Kernel.Gen
open Idealize.ShloMosaic Idealize.ShloMosaic.ValueIdx

variable {F : FTy → Type} [FloatOps F]
variable (d : Dev nD) (L : grid4.Coords)
variable (fx : Buf (Elt F) ((Memref.whole main_v0_scv : Memref sig .scVector .hbm S22x1600000 .f32).view.loc (thr d L)))

abbrev rowRect : Rect S8x3200 := Rect.unit (s := S8x3200) ![0, 0] S1x3200.size inb_S8x3200_S1x3200_0_0

/-- row 0 of the staging array is piece n of the argument row -/
def InRow (a : Memref sig .scVector .vmem S8x3200 .f32) (ga : Buf (Elt F) (a.view.loc (thr d L))) (n : ℕ) : Prop :=
  ∀ y : S1x3200.Idx, a.view.read (Elt F) ga (rowRect.emb y) = (inM L n).view.read (Elt F) fx y

theorem inRow_fetch (a : Memref sig .scVector .vmem S8x3200 .f32) (gold : Buf (Elt F) (a.view.loc (thr d L)))
    (w : S1x3200.Idx → Elt F .f32) (n : ℕ) (hw : ∀ y, w y = (inM L n).view.read (Elt F) fx y) :
    InRow d L fx a (a.view.writes (Elt F) gold [⟨rowRect, w⟩]) n :=
  fun y => (View.read_writes_cons_emb a.view gold rowRect w [] y).trans (hw y)

def Lanes (a : Memref sig .scVector .vmem S8x3200 .f32) (b : Memref sig .scVector .vmem S25600 .f32)
    (ga : Buf (Elt F) (a.view.loc (thr d L))) (gb : Buf (Elt F) (b.view.loc (thr d L))) (j : ℕ) : Prop :=
  ∀ (r : ℕ) (hr : r < 3200), r < 16 * j →
    b.view.read (Elt F) gb (ix1 (⟨r, by omega⟩ : Fin 25600)) = a.view.read (Elt F) ga (ix2 (0 : Fin 8) (⟨r, hr⟩ : Fin 3200))

theorem lanes_zero (a : Memref sig .scVector .vmem S8x3200 .f32) (b : Memref sig .scVector .vmem S25600 .f32)
    (ga : Buf (Elt F) (a.view.loc (thr d L))) (gb : Buf (Elt F) (b.view.loc (thr d L))) : Lanes d L a b ga gb 0 := by
  intro r hr h; omega

/-- The 1 × 16 window at column `c` of the staging array, read at lane `t`, is element `(0, c + t)`. -/
theorem idx_window {off : Fin 2 → ℕ} {c : ℕ} (h : off = ![0, c]) (p : ∀ a', off a' + S1x16.size a' ≤ S8x3200.size a')
    (t : Fin 16) (hr : c + t.val < 3200) :
    (Rect.unit (s := S8x3200) off S1x16.size p).toLoadRect.idx (ix2 (0 : Fin 1) t) = ix2 (0 : Fin 8) (⟨c + t.val, hr⟩ : Fin 3200) := by
  subst h
  funext a'; apply Fin.ext
  rw [LoadRect.idx_apply]
  match a' with
  | ⟨0, _⟩ => show 0 + 1 * 0 = 0; omega
  | ⟨1, _⟩ => show c + 1 * t.val = c + t.val; omega

/-- One trip of a lane-copy loop, the offsets given by their closed forms. -/
theorem lanes_step_core (a : Memref sig .scVector .vmem S8x3200 .f32) (b : Memref sig .scVector .vmem S25600 .f32)
    (ga : Buf (Elt F) (a.view.loc (thr d L))) (gb : Buf (Elt F) (b.view.loc (thr d L)))
    (t : ℕ) {off3 : Fin 2 → ℕ} {off4 : Fin 1 → ℕ} (h3 : off3 = ![0, 16 * t]) (h4 : off4 = ![16 * t])
    (p3 : ∀ a', off3 a' + S1x16.size a' ≤ S8x3200.size a') (p4 : ∀ a', off4 a' + S16.size a' ≤ S25600.size a')
    (h : Lanes d L a b ga gb t) :
    Lanes d L a b ga (b.view.writes (Elt F) gb [⟨Rect.unit (s := S25600) off4 S16.size p4,
      shapeCast S16 (a.view.readAt (Elt F) (Rect.unit (s := S8x3200) off3 S1x16.size p3).toLoadRect ga) shapeCasts_S1x16_S16⟩]) (t + 1) := by
  intro r hr hlt
  by_cases hlo : r < 16 * t
  · refine (View.read_writes_cons_unit_of_not_mem b.view gb p4 _ [] _ h4 (0 : Fin 1) (Or.inl ?_)).trans (h r hr hlo)
    show r < 16 * t
    exact hlo
  · have hx : r - 16 * t < 16 := by omega
    refine (View.read_writes_cons_unit_of_mem b.view gb p4 _ [] _ (ix1 (⟨r - 16 * t, hx⟩ : Fin 16)) h4 ?_).trans ?_
    · intro a'
      match a' with
      | ⟨0, _⟩ => show r = 16 * t + (r - 16 * t); omega
    · rw [shapeCast_1a_a_apply, View.readAt_apply, idx_window h3 p3 ⟨r - 16 * t, hx⟩ (by show 16 * t + (r - 16 * t) < 3200; omega)]
      congr 2
      apply Fin.ext
      show 16 * t + (r - 16 * t) = r
      omega

theorem lanes_step (a : Memref sig .scVector .vmem S8x3200 .f32) (b : Memref sig .scVector .vmem S25600 .f32)
    (ga : Buf (Elt F) (a.view.loc (thr d L))) (gb : Buf (Elt F) (b.view.loc (thr d L)))
    (j : Fin k4_t2_loop.trips) (p3 : ∀ a', (k4_off3 j) a' + S1x16.size a' ≤ S8x3200.size a')
    (p4 : ∀ a', (k4_off4 j) a' + S16.size a' ≤ S25600.size a') (h : Lanes d L a b ga gb j.val) :
    Lanes d L a b ga (b.view.writes (Elt F) gb [⟨Rect.unit (s := S25600) (k4_off4 j) S16.size p4,
      k4_pay1 (a.view.readAt (Elt F) (Rect.unit (s := S8x3200) (k4_off3 j) S1x16.size p3).toLoadRect ga)⟩]) (j.val + 1) :=
  lanes_step_core d L a b ga gb j.val (k4_off3_eq j) (k4_off4_eq j) p3 p4 h

theorem lanes_step' (a : Memref sig .scVector .vmem S8x3200 .f32) (b : Memref sig .scVector .vmem S25600 .f32)
    (ga : Buf (Elt F) (a.view.loc (thr d L))) (gb : Buf (Elt F) (b.view.loc (thr d L)))
    (j : Fin k4_t3_loop.trips) (p3 : ∀ a', (k4_off8 j) a' + S1x16.size a' ≤ S8x3200.size a')
    (p4 : ∀ a', (k4_off9 j) a' + S16.size a' ≤ S25600.size a') (h : Lanes d L a b ga gb j.val) :
    Lanes d L a b ga (b.view.writes (Elt F) gb [⟨Rect.unit (s := S25600) (k4_off9 j) S16.size p4,
      k4_pay2 (a.view.readAt (Elt F) (Rect.unit (s := S8x3200) (k4_off8 j) S1x16.size p3).toLoadRect ga)⟩]) (j.val + 1) :=
  lanes_step_core d L a b ga gb j.val (k4_off8_eq j) (k4_off9_eq j) p3 p4 h

/-- Position `y` of the write-out window of the flat staging array is its element `y 0`. -/
theorem stg_emb (y : S3200.Idx) (hy : (y 0).val < 25600) :
    (Rect.unit (s := S25600) ![0] S3200.size inb_S25600_S3200_0).emb y = ix1 (⟨(y 0).val, hy⟩ : Fin 25600) := by
  funext a'; apply Fin.ext
  match a' with
  | ⟨0, _⟩ => show 0 + 1 * (y 0).val = (y 0).val; omega

/-- Position `(0, t)` of row 0 of the staging array is its element `(0, t)`. -/
theorem row_emb (t : Fin 3200) : rowRect.emb (ix2 (0 : Fin 1) t) = ix2 (0 : Fin 8) t := by
  funext a'; apply Fin.ext
  match a' with
  | ⟨0, _⟩ => show 0 + 1 * 0 = 0; omega
  | ⟨1, _⟩ => show 0 + 1 * t.val = t.val; omega

/-- Position `(0, t)` of piece `n` of the argument row is element `(0, pos + t)` of the transposed argument;
    position `y` of piece `n` of the result is element `pos + y 0` of the result. -/
theorem in_emb (n : ℕ) (t : Fin 3200) (h : pos L n + t.val < 1600000) :
    (inM L n).view.emb (ix2 (0 : Fin 1) t) = ix2 (4 : Fin 22) (⟨pos L n + t.val, h⟩ : Fin 1600000) := by
  funext a'; apply Fin.ext
  match a' with
  | ⟨0, _⟩ => show 4 + 1 * 0 = 4; omega
  | ⟨1, _⟩ => show pos L n + 1 * t.val = pos L n + t.val; omega

theorem out_emb (n : ℕ) (y : S3200.Idx) (h : pos L n + (y 0).val < 1600000) :
    (outM L n).view.emb y = ix1 (⟨pos L n + (y 0).val, h⟩ : Fin 1600000) := by
  funext a'; apply Fin.ext
  match a' with
  | ⟨0, _⟩ => show pos L n + 1 * (y 0).val = pos L n + (y 0).val; omega

/-- Both lane-copy loops run 200 trips: 200 · 16 = 3200, the whole row. -/
theorem trips2 : k4_t2_loop.trips = 200 := by decide
theorem trips3 : k4_t3_loop.trips = 200 := by decide

/-- After all its trips a lane-copy loop has copied the whole row. -/
theorem lanes_all (a : Memref sig .scVector .vmem S8x3200 .f32) (b : Memref sig .scVector .vmem S25600 .f32)
    (ga : Buf (Elt F) (a.view.loc (thr d L))) (gb : Buf (Elt F) (b.view.loc (thr d L)))
    (h : Lanes d L a b ga gb k4_t2_loop.trips) : Lanes d L a b ga gb 200 := trips2 ▸ h
theorem lanes_all' (a : Memref sig .scVector .vmem S8x3200 .f32) (b : Memref sig .scVector .vmem S25600 .f32)
    (ga : Buf (Elt F) (a.view.loc (thr d L))) (gb : Buf (Elt F) (b.view.loc (thr d L)))
    (h : Lanes d L a b ga gb k4_t3_loop.trips) : Lanes d L a b ga gb 200 := trips3 ▸ h

/-- The write-out of a piece: the first 3200 elements of the flat staging array, which the 200 lane copies filled from
    row 0 of the staging array, which the fetch filled from piece `n` of row 4 of the transposed argument, land at
    piece `n` of the result, at the same positions of the row. -/
theorem out_written (a : Memref sig .scVector .vmem S8x3200 .f32) (b : Memref sig .scVector .vmem S25600 .f32) (n : ℕ)
    (ga : Buf (Elt F) (a.view.loc (thr d L))) (gb : Buf (Elt F) (b.view.loc (thr d L)))
    (f0 : Buf (Elt F) ((outM L n).view.loc (thr d L))) (w : S3200.Idx → Elt F .f32)
    (hw : ∀ y, w y = (stg b).view.read (Elt F) gb y) (hl : Lanes d L a b ga gb 200) (hr : InRow d L fx a ga n) (hv : valid L n) :
    ∀ i ∈ (outM L n).view.set, ((outM L n).view.writes (Elt F) f0 [⟨Rect.whole _, w⟩]) i = Cert.Spec.row 4 fx i := by
  intro i hi
  obtain ⟨y, -, rfl⟩ := Finset.mem_map.mp hi
  have hy : (y 0).val < 3200 := (y 0).isLt
  have hp : pos L n + (y 0).val < 1600000 := by unfold pos; omega
  have e1 : (outM L n).view.writes (Elt F) f0 [⟨Rect.whole _, w⟩] ((outM L n).view.emb y) = w y := by
    have h := View.read_writes_cons_emb (outM L n).view f0 (Rect.whole _) w [] y
    rw [Rect.emb_whole_apply] at h
    exact (cast_eq _ _).symm.trans ((View.read_apply _ _).symm.trans h)
  have e2 : (stg b).view.read (Elt F) gb y = b.view.read (Elt F) gb (ix1 (⟨(y 0).val, by omega⟩ : Fin 25600)) :=
    congrArg (b.view.read (Elt F) gb) (stg_emb y (by omega))
  have e3 : a.view.read (Elt F) ga (ix2 (0 : Fin 8) (⟨(y 0).val, hy⟩ : Fin 3200))
      = (inM L n).view.read (Elt F) fx (ix2 (0 : Fin 1) (⟨(y 0).val, hy⟩ : Fin 3200)) :=
    (congrArg (a.view.read (Elt F) ga) (row_emb ⟨(y 0).val, hy⟩).symm).trans (hr _)
  have e4 : (inM L n).view.read (Elt F) fx (ix2 (0 : Fin 1) (⟨(y 0).val, hy⟩ : Fin 3200))
      = fx (ix2 (4 : Fin 22) (⟨pos L n + (y 0).val, hp⟩ : Fin 1600000)) :=
    ((View.read_apply _ _).trans (cast_eq _ _)).trans (congrArg fx (in_emb L n ⟨(y 0).val, hy⟩ hp))
  have e5 : Cert.Spec.row 4 fx ((outM L n).view.emb y) = fx (ix2 (4 : Fin 22) (⟨pos L n + (y 0).val, hp⟩ : Fin 1600000)) :=
    (congrArg (Cert.Spec.row 4 fx) (out_emb L n y hp)).trans (Cert.Spec.row_apply 4 fx _)
  exact e1.trans ((hw y).trans (e2.trans ((hl _ hy (by omega)).trans (e3.trans (e4.trans e5.symm)))))

end Cert.Proof.TileBVal4

end
-- ==== Proof.TileB4.lean ====
/-
  One vector subcore's task of copy kernel 4 (counting from 0), run symbolically: the two fetch slots and two write-out slots
  between trips of the main loop (what each transfer in flight will hand back, and what the staging buffers hold), the
  invariant of the main loop and of the two lane-copy loops, and the task's run — from the tile's pieces of row 4 of
  the transposed argument and of the result to the same pieces with the result holding the row's elements.
-/
import proofs.«206869_g37898791420194_cont_8to1_b_558_20_alg».proof.Proof.TileB4Defs
import proofs.«206869_g37898791420194_cont_8to1_b_558_20_alg».proof.Proof.TileBVal4
noncomputable section

namespace Cert.Proof.TileB4

open Cert.Kernel Cert.Kernel.Gen Cert.Proof.TileBVal4
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 22) (Elt F) ℕ UU ℕ
local notation "xtW" => (Memref.whole Cert.Kernel.main_v0_scv : Memref Cert.Kernel.sig Kind.scVector Space.hbm Cert.Kernel.S22x1600000 EltTy.f32)
local notation "oW" => (Memref.whole Cert.Kernel.main_v5_scv : Memref Cert.Kernel.sig Kind.scVector Space.hbm Cert.Kernel.S1600000 EltTy.f32)
local notation "a4" => (Memref.whole Cert.Kernel.cc4_scratch0 : Memref Cert.Kernel.sig Kind.scVector Space.vmem Cert.Kernel.S8x3200 EltTy.f32)
local notation "a5" => (Memref.whole Cert.Kernel.cc4_scratch1 : Memref Cert.Kernel.sig Kind.scVector Space.vmem Cert.Kernel.S8x3200 EltTy.f32)
local notation "a6" => (Memref.whole Cert.Kernel.cc4_scratch2 : Memref Cert.Kernel.sig Kind.scVector Space.vmem Cert.Kernel.S25600 EltTy.f32)
local notation "a7" => (Memref.whole Cert.Kernel.cc4_scratch3 : Memref Cert.Kernel.sig Kind.scVector Space.vmem Cert.Kernel.S25600 EltTy.f32)

variable [FloatOps F]

section Tile

variable (d : Dev nD) (L : grid4.Coords)
variable (O : CellTallies nD τ sig (HIx 22)) (W : Waits sig (HIx 22))
variable (fx : Buf (Elt F) ((xtW).view.loc (thr d L)))

/-- Piece `n` of the result at its final contents. -/
abbrev oqPiece (n : ℕ) : sProp 𝕄 := (outM L n).view.loc (thr d L) ↦[(outM L n).view.set]{fullShare} (Cert.Spec.row 4 fx)
theorem oQ_pos {n : ℕ} (v : valid L n) : oQ d L fx n = oqPiece d L fx n := if_pos v
theorem oQ_neg {n : ℕ} (v : ¬ valid L n) : oQ d L fx n = iprop(emp) := if_neg v

/-- A fetch slot, remembering that the staging row it will hand back holds the piece. -/
def inSlotV (a : Memref sig .scVector .vmem S8x3200 .f32) (sm : DmaSem sig) (n : ℕ) : sProp 𝕄 :=
  if valid L n then
    iprop(∃ g, ⌜InRow d L fx a g n⌝ ∗ Transfers.Flight countersEmb (thr d L) (SemLoc.dma sm) (default : HIx 22) NN
      iprop((a.view.loc (thr d L) ↦{fullShare} g) ∗ xtPiece d L fx n))
  else iprop((∃ g, a.view.loc (thr d L) ↦{fullShare} g) ∗ semVal (thr d L, SemLoc.dma sm) 0)

/-- A write-out slot: the piece in flight will come back holding the row's elements. -/
def outSlotV (a : Memref sig .scVector .vmem S25600 .f32) (sm : DmaSem sig) (m : ℕ) : sProp 𝕄 :=
  if 2 ≤ m ∧ valid L (m - 2) then
    iprop(∃ g, Transfers.Flight countersEmb (thr d L) (SemLoc.dma sm) (default : HIx 22) NN
        iprop(oqPiece d L fx (m - 2) ∗ ((stg a).view.loc (thr d L) ↦[(stg a).view.set]{fullShare} g))
      ∗ (a.view.loc (thr d L) ↦[Finset.univ \ (stg a).view.set]{fullShare} g))
  else iprop((∃ g, a.view.loc (thr d L) ↦{fullShare} g) ∗ semVal (thr d L, SemLoc.dma sm) 0)

theorem inSlotV_pos {a : Memref sig .scVector .vmem S8x3200 .f32} {sm : DmaSem sig} {n : ℕ} (v : valid L n) :
    inSlotV d L fx a sm n = iprop(∃ g, ⌜InRow d L fx a g n⌝ ∗ Transfers.Flight countersEmb (thr d L) (SemLoc.dma sm) (default : HIx 22) NN
      iprop((a.view.loc (thr d L) ↦{fullShare} g) ∗ xtPiece d L fx n)) := by unfold inSlotV; rw [if_pos v]
theorem inSlotV_neg {a : Memref sig .scVector .vmem S8x3200 .f32} {sm : DmaSem sig} {n : ℕ} (v : ¬ valid L n) :
    inSlotV d L fx a sm n = iprop((∃ g, a.view.loc (thr d L) ↦{fullShare} g) ∗ semVal (thr d L, SemLoc.dma sm) 0) := by
  unfold inSlotV; rw [if_neg v]
theorem outSlotV_pos {a : Memref sig .scVector .vmem S25600 .f32} {sm : DmaSem sig} {m : ℕ} (h : 2 ≤ m ∧ valid L (m - 2)) :
    outSlotV d L fx a sm m = iprop(∃ g, Transfers.Flight countersEmb (thr d L) (SemLoc.dma sm) (default : HIx 22) NN
        iprop(oqPiece d L fx (m - 2) ∗ ((stg a).view.loc (thr d L) ↦[(stg a).view.set]{fullShare} g))
      ∗ (a.view.loc (thr d L) ↦[Finset.univ \ (stg a).view.set]{fullShare} g)) := by unfold outSlotV; rw [if_pos h]
theorem outSlotV_neg {a : Memref sig .scVector .vmem S25600 .f32} {sm : DmaSem sig} {m : ℕ} (h : ¬ (2 ≤ m ∧ valid L (m - 2))) :
    outSlotV d L fx a sm m = iprop((∃ g, a.view.loc (thr d L) ↦{fullShare} g) ∗ semVal (thr d L, SemLoc.dma sm) 0) := by
  unfold outSlotV; rw [if_neg h]

/-- A fetch just issued: the staging row will hold what the transfer reads, which is the piece. -/
theorem fl_inV {off : Fin 2 → ℕ} {n : ℕ} (h : off = ![4, pos L n]) (p : ∀ a, off a + S1x3200.size a ≤ S22x1600000.size a) (v : valid L n)
    (a : Memref sig .scVector .vmem S8x3200 .f32) (sm : DmaSem sig) :
    (iprop(∃ (gold : Buf (Elt F) (a.view.loc (thr d L))) (w : S1x3200.Idx → Elt F .f32),
        ⌜∀ y, w y = ((xtW).slice (Rect.unit (s := S22x1600000) off S1x3200.size p) (fun _ => rfl)).view.read (Elt F) fx y⌝
        ∗ Transfers.Flight countersEmb (thr d L) (SemLoc.dma sm) (default : HIx 22) NN
          iprop((a.view.loc (thr d L) ↦{fullShare} a.view.writes (Elt F) gold [⟨rowRect, w⟩])
            ∗ (((xtW).slice (Rect.unit (s := S22x1600000) off S1x3200.size p) (fun _ => rfl)).view.loc (thr d L)
                ↦[((xtW).slice (Rect.unit (s := S22x1600000) off S1x3200.size p) (fun _ => rfl)).view.set]{fullShare} fx))) : sProp 𝕄)
      ⊢ inSlotV d L fx a sm n := by
  subst h
  rw [inSlotV_pos d L fx v]
  iintro ⟨%gold, %w, %hw, H⟩
  iexists _
  isplitr
  · ipureintro; exact inRow_fetch d L fx a gold w n hw
  · iexact H

set_option maxHeartbeats 4000000 in
/-- A write-out just issued from a flat staging buffer whose first 3200 elements are the staging row, itself piece
    `n` of the argument row: the piece of the result will hold the row's elements. -/
theorem fl_outV {off : Fin 1 → ℕ} {n : ℕ} (h : off = ![pos L n]) (p : ∀ a, off a + S3200.size a ≤ S1600000.size a) (v : valid L n)
    (ar : Memref sig .scVector .vmem S8x3200 .f32) (a : Memref sig .scVector .vmem S25600 .f32) (sm : DmaSem sig)
    (f0 : Buf (Elt F) ((oW).view.loc (thr d L))) (ga : Buf (Elt F) (ar.view.loc (thr d L))) (gb : Buf (Elt F) (a.view.loc (thr d L)))
    (hl : Lanes d L ar a ga gb 200) (hr : InRow d L fx ar ga n) :
    (iprop(∃ (w : S3200.Idx → Elt F .f32),
        ⌜∀ y, w y = (stg a).view.read (Elt F) gb y⌝
        ∗ Transfers.Flight countersEmb (thr d L) (SemLoc.dma sm) (default : HIx 22) NN
          iprop((((oW).slice (Rect.unit (s := S1600000) off S3200.size p) (fun _ => rfl)).view.loc (thr d L)
                ↦[((oW).slice (Rect.unit (s := S1600000) off S3200.size p) (fun _ => rfl)).view.set]{fullShare}
                  (((oW).slice (Rect.unit (s := S1600000) off S3200.size p) (fun _ => rfl)).view.writes (Elt F) f0 [⟨Rect.whole _, w⟩]))
            ∗ ((stg a).view.loc (thr d L) ↦[(stg a).view.set]{fullShare} gb))
        ∗ (a.view.loc (thr d L) ↦[Finset.univ \ (stg a).view.set]{fullShare} gb)) : sProp 𝕄)
      ⊢ outSlotV d L fx a sm (n + 2) := by
  subst h
  rw [outSlotV_pos d L fx (m := n + 2) ⟨by omega, by simpa using v⟩]
  iintro ⟨%w, %hw, H, R⟩
  have hD : (iprop(((outM L n).view.loc (thr d L) ↦[(outM L n).view.set]{fullShare} ((outM L n).view.writes (Elt F) f0 [⟨Rect.whole _, w⟩]))
          ∗ ((stg a).view.loc (thr d L) ↦[(stg a).view.set]{fullShare} gb)) : sProp 𝕄)
      ⊢ iprop(oqPiece d L fx (n + 2 - 2) ∗ ((stg a).view.loc (thr d L) ↦[(stg a).view.set]{fullShare} gb)) := by
    rw [Nat.add_sub_cancel]
    have e : (((outM L n).view.loc (thr d L) ↦[(outM L n).view.set]{fullShare} ((outM L n).view.writes (Elt F) f0 [⟨Rect.whole _, w⟩])) : sProp 𝕄)
        = oqPiece d L fx n := pointsTo_congr (out_written d L fx ar a n ga gb f0 w hw hl hr v)
    iintro ⟨H1, H2⟩
    isplitl [H1]
    · iapply (Entails.of_eq e); iexact H1
    · iexact H2
  iexists gb
  isplitl [H]
  · iapply (Transfers.Flight_mono countersEmb (thr d L) hD); iexact H
  · iexact R

/-- The result pieces outside the slots before trip `t`: those already written hold the row, the others some contents. -/
def oMix (t n : ℕ) : sProp 𝕄 := if n + 2 < 2 * t then oQ d L fx n else oP (F := F) d L n
theorem oMix_lt {t n : ℕ} (h : n + 2 < 2 * t) : oMix d L fx t n = oQ d L fx n := if_pos h
theorem oMix_ge {t n : ℕ} (h : ¬ n + 2 < 2 * t) : oMix d L fx t n = oP (F := F) d L n := if_neg h
theorem oMix_core (k : ℕ) : bigSep (oCore k) (oMix d L fx k) = bigSep (oCore k) (oMix d L fx (k + 1)) :=
  bigSep_congr fun n hn => by
    have hn' : n + 2 ≠ 2 * k ∧ n + 2 ≠ 2 * k + 1 ∧ n ≠ 2 * k ∧ n ≠ 2 * k + 1 := by
      simp only [oCore, Finset.mem_filter, Finset.mem_range] at hn; exact hn.2
    by_cases h : n + 2 < 2 * k
    · rw [oMix_lt d L fx h, oMix_lt d L fx (by omega)]
    · rw [oMix_ge d L fx h, oMix_ge d L fx (by omega)]
theorem oMix_zero : bigSep (oSet 0) (oMix d L fx 0) = bigSep (Finset.range 18) (oP (F := F) d L) := by
  rw [oSet_zero]; exact bigSep_congr fun n _ => oMix_ge d L fx (by omega)
theorem oMix_end : bigSep (oSet 8) (oMix d L fx 8) = bigSep (oSet 8) (oQ d L fx) :=
  bigSep_congr fun n hn => by
    have hn' : n < 18 ∧ n + 2 ≠ 16 ∧ n + 2 ≠ 17 := by simpa only [oSet, Finset.mem_filter, Finset.mem_range] using hn
    by_cases h : n + 2 < 2 * 8
    · exact oMix_lt d L fx h
    · rw [oMix_ge d L fx h, oP_neg (F := F) d L (by unfold valid; omega), oQ_neg d L fx (by unfold valid; omega)]

/-- The lane-copy loops: before trip `j` the first 16·j elements of the flat staging buffer are the staging row's. -/
def laneV0 (g4 : Buf (Elt F) ((a4).view.loc (thr d L))) (j : ℕ) (_ : PUnit) : sProp 𝕄 :=
  iprop(((a4).view.loc (thr d L) ↦{fullShare} g4) ∗ (∃ g, ((a6).view.loc (thr d L) ↦{fullShare} g) ∗ ⌜Lanes d L a4 a6 g4 g j⌝))
def laneV1 (g5 : Buf (Elt F) ((a5).view.loc (thr d L))) (j : ℕ) (_ : PUnit) : sProp 𝕄 :=
  iprop(((a5).view.loc (thr d L) ↦{fullShare} g5) ∗ (∃ g, ((a7).view.loc (thr d L) ↦{fullShare} g) ∗ ⌜Lanes d L a5 a7 g5 g j⌝))

def invV (t : ℕ) (_ : PUnit) : sProp 𝕄 :=
  iprop(Transfers.MayWaits (thr d L) (none : HIx 22) O
    ∗ (∃ W', ⌜∀ p ∈ W', p ∈ W ∨ p.2 = none⌝ ∗ owes (thr d L) O W')
    ∗ bigSep (xSet t) (xP d L fx) ∗ bigSep (oSet t) (oMix d L fx t)
    ∗ inSlotV d L fx a4 cc4_scratch4.sem (2 * t) ∗ outSlotV d L fx a6 cc4_scratch6.sem (2 * t)
    ∗ inSlotV d L fx a5 cc4_scratch5.sem (2 * t + 1) ∗ outSlotV d L fx a7 cc4_scratch7.sem (2 * t + 1))

/-- After the last trip nothing of the argument row is in a slot: the tile holds all its pieces. -/
theorem xRange_end : bigSep (xSet 8) (xP d L fx) ⊢ bigSep (Finset.range 18) (xP d L fx) := by
  rw [two_out (s := Finset.range 18) (a := 16) (b := 17) (by decide) (by decide) (by decide),
    show ((Finset.range 18).erase 16).erase 17 = xSet 8 by decide]
  iintro H
  isplitr; · iapply (Entails.of_eq (xP_neg d L fx (n := 16) (by unfold valid; omega)).symm); iempintro
  isplitr; · iapply (Entails.of_eq (xP_neg d L fx (n := 17) (by unfold valid; omega)).symm); iempintro
  iexact H
omit [FloatOps F] in
theorem oRange_end (Φ : ℕ → sProp 𝕄) : bigSep (Finset.range 18) Φ = iprop(Φ 14 ∗ Φ 15 ∗ bigSep (oSet 8) Φ) := by
  rw [two_out (s := Finset.range 18) (a := 14) (b := 15) (by decide) (by decide) (by decide),
    show ((Finset.range 18).erase 14).erase 15 = oSet 8 by decide]

/-- What the run starts from and ends with, beside an untouched rest `R`. -/
def runPre (R : sProp 𝕄) : sProp 𝕄 :=
    iprop(Transfers.MayWaits (thr d L) (none : HIx 22) O ∗ owes (thr d L) O W
        ∗ bigSep (Finset.range 18) (xP d L fx) ∗ bigSep (Finset.range 18) (oP (F := F) d L)
        ∗ (∃ g, (a4).view.loc (thr d L) ↦{fullShare} g) ∗ (∃ g, (a5).view.loc (thr d L) ↦{fullShare} g)
        ∗ (∃ g, (a6).view.loc (thr d L) ↦{fullShare} g) ∗ (∃ g, (a7).view.loc (thr d L) ↦{fullShare} g)
        ∗ semVal (thr d L, SemLoc.dma cc4_scratch4.sem) 0 ∗ semVal (thr d L, SemLoc.dma cc4_scratch5.sem) 0
        ∗ semVal (thr d L, SemLoc.dma cc4_scratch6.sem) 0 ∗ semVal (thr d L, SemLoc.dma cc4_scratch7.sem) 0 ∗ R)
def runPost (R : sProp 𝕄) : sProp 𝕄 :=
    iprop(bigSep (Finset.range 18) (xP d L fx) ∗ bigSep (Finset.range 18) (oQ d L fx)
            ∗ (∃ g, (a4).view.loc (thr d L) ↦{fullShare} g) ∗ (∃ g, (a5).view.loc (thr d L) ↦{fullShare} g)
            ∗ (∃ g, (a6).view.loc (thr d L) ↦{fullShare} g) ∗ (∃ g, (a7).view.loc (thr d L) ↦{fullShare} g)
            ∗ semVal (thr d L, SemLoc.dma cc4_scratch4.sem) 0 ∗ semVal (thr d L, SemLoc.dma cc4_scratch5.sem) 0
            ∗ semVal (thr d L, SemLoc.dma cc4_scratch6.sem) 0 ∗ semVal (thr d L, SemLoc.dma cc4_scratch7.sem) 0
            ∗ (∃ W', ⌜∀ p ∈ W', p ∈ W ∨ p.2 = none⌝ ∗ owes (thr d L) O W') ∗ R)

set_option maxHeartbeats 16000000 in
/-- The task's run: from its pieces of the argument row and of the result, the four staging buffers and the four
    semaphores at zero, to the same with every piece of the result holding the row's elements. -/
theorem tile_run (R : sProp 𝕄) :
    runPre d L O W fx R
      ⊢ wp frame (wpE (defs₀ (F := F)) 𝒱₀ (thr d L) none) Set.univ
          (cc4_sc_group L xtW (Memref.isWhole_whole _) oW (Memref.isWhole_whole _) a4 (Memref.isWhole_whole _) a5 (Memref.isWhole_whole _)
            a6 (Memref.isWhole_whole _) a7 (Memref.isWhole_whole _) cc4_scratch4 cc4_scratch5 cc4_scratch6 cc4_scratch7)
          fun _ => runPost d L O W fx R := by
  unfold runPre runPost
  have v0 : valid L 0 := Or.inl (by omega)
  have v1 : valid L 1 := Or.inl (by omega)
  have k4_h7 : k4_cond7 L = 1#1 := cond7_iff L
  iintro ⟨#Hmw, HO, HX, HOut, ⟨%g4, H4⟩, ⟨%g5, H5⟩, ⟨%g6, H6⟩, ⟨%g7, H7⟩, Hs8, Hs9, Hs10, Hs11, HR⟩
  ihave HX := (Entails.of_eq (xRange_split d L fx v0 v1)) $$ HX
  icases HX with ⟨X0, X1, HX⟩
  ihave X0 := (Entails.of_eq (in_congr d L (off_in0 L v0).symm (in_inb L _) (k4_off1_inb L 0) fx)) $$ X0
  ihave X1 := (Entails.of_eq (in_congr d L (off_in1 L v1).symm (in_inb L _) (k4_off1_inb L 1) fx)) $$ X1
  sl_unfold [cc4_sc_group]
  sl_exec
  ihave S8 := (fl_inV d L fx (off_in0 L v0) (k4_off1_inb L 0) v0 a4 cc4_scratch4.sem) $$ [Hs8]
  · iexists _, _
    isplitr
    rotate_left
    · iexact Hs8
    ipureintro; intro y; rfl
  ihave S9 := (fl_inV d L fx (off_in1 L v1) (k4_off1_inb L 1) v1 a5 cc4_scratch5.sem) $$ [Hs9]
  · iexists _, _
    isplitr
    rotate_left
    · iexact Hs9
    ipureintro; intro y; rfl
  sl_for (invV d L O W fx) $$ [HO HX HOut S8 S9 H6 H7 Hs10 Hs11]
  case region =>
    intro (k : Fin k4_t1_loop.trips) acc
    have hk : k.val < 8 := Nat.lt_of_lt_of_eq k.isLt trips1
    unfold invV
    iintro ⟨#Hmw, ⟨%W', %hW', HO⟩, HX, HOut, S8, S10, S9, S11⟩
    by_cases hk1 : 1 ≤ k.val
    · by_cases v3 : valid L (2 * k.val + 3)
      · -- the generic trip: both drains, both pieces worked, both next fetches issued
        have hk6 : k.val ≤ 6 := by unfold valid at v3; omega
        have k4_h1 : k4_cond1 k = 1#1 := (cond1_iff k).mpr (by omega)
        have k4_h2 : k4_cond2 L k = 1#1 := cond2_iff L k
        have k4_h3 : k4_cond3 L k = 1#1 := (cond3_iff L k).mpr (by omega)
        have k4_h4 : k4_cond4 k = 1#1 := (cond4_iff k).mpr (by omega)
        have k4_h5 : k4_cond5 L k = 1#1 := (cond5_iff L k).mpr (by first | (unfold valid big at *; omega) | (unfold big at *; omega) | omega)
        have k4_h6 : k4_cond6 L k = 1#1 := (cond6_iff L k).mpr (by first | (unfold valid big at *; omega) | (unfold big at *; omega) | omega)
        have v0 : valid L (2 * k.val) := by unfold valid big at *; omega
        have v1 : valid L (2 * k.val + 1) := by unfold valid big at *; omega
        have v2 : valid L (2 * k.val + 2) := by unfold valid big at *; omega
        have v3' : valid L (2 * k.val + 3) := by unfold valid big at *; omega
        have hm0 : 2 ≤ 2 * k.val ∧ valid L (2 * k.val - 2) := ⟨by omega, by unfold valid big at *; omega⟩
        have hm1 : 2 ≤ 2 * k.val + 1 ∧ valid L (2 * k.val + 1 - 2) := ⟨by omega, by unfold valid big at *; omega⟩
        ihave S8 := (Entails.of_eq (inSlotV_pos d L fx v0)) $$ S8
        icases S8 with ⟨%g4, %hin4, F8⟩
        ihave S9 := (Entails.of_eq (inSlotV_pos d L fx v1)) $$ S9
        icases S9 with ⟨%g5, %hin5, F9⟩
        ihave S10 := (Entails.of_eq (outSlotV_pos d L fx hm0)) $$ S10
        icases S10 with ⟨%g6, F10, R6⟩
        ihave S11 := (Entails.of_eq (outSlotV_pos d L fx hm1)) $$ S11
        icases S11 with ⟨%g7, F11, R7⟩
        ihave HX := (Entails.of_eq (xSet_out (xP d L fx) k.val hk)) $$ HX
        icases HX with ⟨X2, X3, HX⟩
        ihave X2 := (Entails.of_eq (xP_pos d L fx v2)) $$ X2
        ihave X2 := (Entails.of_eq (in_congr d L (off_6 L k v2).symm (in_inb L _) (k4_off6_inb L k k4_h3) fx)) $$ X2
        ihave X3 := (Entails.of_eq (xP_pos d L fx v3')) $$ X3
        ihave X3 := (Entails.of_eq (in_congr d L (off_11 L k v3').symm (in_inb L _) (k4_off11_inb L k k4_h6) fx)) $$ X3
        ihave HOut := (Entails.of_eq (oSet_out (oMix d L fx k.val) k.val hk)) $$ HOut
        icases HOut with ⟨Y0, Y1, HOut⟩
        ihave Y0 := (Entails.of_eq ((oMix_ge d L fx (t := k.val) (n := 2 * k.val) (by omega)).trans (oP_pos (F := F) d L v0))) $$ Y0
        icases Y0 with ⟨%f0, Y0⟩
        ihave Y0 := (Entails.of_eq (out_congr d L (off_5 L k v0).symm (out_inb L _) (k4_off5_inb L k k4_h2) f0)) $$ Y0
        ihave Y1 := (Entails.of_eq ((oMix_ge d L fx (t := k.val) (n := 2 * k.val + 1) (by omega)).trans (oP_pos (F := F) d L v1))) $$ Y1
        icases Y1 with ⟨%f1, Y1⟩
        ihave Y1 := (Entails.of_eq (out_congr d L (off_10 L k v1).symm (out_inb L _) (k4_off10_inb L k k4_h5) f1)) $$ Y1
        sl_exec
        sl_for (laneV0 d L g4) $$ [F8_dst R6]
        case region =>
          intro (j : Fin k4_t2_loop.trips) _
          unfold laneV0
          iintro ⟨HA, %g, HB, %hl⟩
          sl_exec
          sl_step
          isplitl [HA]; · iexact HA
          iexists _; isplitl [HB]; · iexact HB
          ipureintro; exact lanes_step d L a4 a6 g4 g j _ _ hl
        · unfold laneV0
          isplitl [F8_dst]; · iexact F8_dst
          iexists _; isplitl [R6]; · iexact R6
          ipureintro; exact lanes_zero d L a4 a6 g4 _
        iintro %_ HI
        unfold laneV0
        icases HI with ⟨H4, %g6', H6, %hl6⟩
        have hl6 : Lanes d L a4 a6 g4 g6' 200 := Eq.mp (congrArg (Lanes d L a4 a6 g4 g6') trips2) hl6
        sl_exec
        sl_for (laneV1 d L g5) $$ [F9_dst R7]
        case region =>
          intro (j : Fin k4_t3_loop.trips) _
          unfold laneV1
          iintro ⟨HA, %g, HB, %hl⟩
          sl_exec
          sl_step
          isplitl [HA]; · iexact HA
          iexists _; isplitl [HB]; · iexact HB
          ipureintro; exact lanes_step' d L a5 a7 g5 g j _ _ hl
        · unfold laneV1
          isplitl [F9_dst]; · iexact F9_dst
          iexists _; isplitl [R7]; · iexact R7
          ipureintro; exact lanes_zero d L a5 a7 g5 _
        iintro %_ HI
        unfold laneV1
        icases HI with ⟨H5, %g7', H7, %hl7⟩
        have hl7 : Lanes d L a5 a7 g5 g7' 200 := Eq.mp (congrArg (Lanes d L a5 a7 g5 g7') trips3) hl7
        sl_exec
        sl_step
        isplitr; · iexact Hmw
        isplitl [HO]
        · iexists _; isplitr
          rotate_left
          · iexact HO
          ipureintro; intro p hp
          rcases Finset.mem_insert.mp hp with rfl | hp
          · exact .inr rfl
          rcases Finset.mem_insert.mp hp with rfl | hp
          · exact .inr rfl
          rcases Finset.mem_insert.mp hp with rfl | hp
          · exact .inr rfl
          rcases Finset.mem_insert.mp hp with rfl | hp
          · exact .inr rfl
          exact hW' p hp
        isplitl [HX F8_src F9_src]
        · iapply (Entails.of_eq (xSet_in (xP d L fx) k.val hk).symm)
          isplitl [F8_src]; · iapply (Entails.of_eq (xP_pos d L fx v0).symm); iexact F8_src
          isplitl [F9_src]; · iapply (Entails.of_eq (xP_pos d L fx v1).symm); iexact F9_src
          iexact HX
        isplitl [HOut F10_dst F11_dst]
        · iapply (Entails.of_eq (oSet_in (oMix d L fx (k.val + 1)) k.val hk (by omega)).symm)
          isplitl [F10_dst]; · iapply (Entails.of_eq ((oMix_lt d L fx (t := k.val + 1) (n := 2 * k.val - 2) (by omega)).trans (oQ_pos d L fx hm0.2)).symm); iexact F10_dst
          isplitl [F11_dst]
          · iapply (Entails.of_eq ((oMix_lt d L fx (t := k.val + 1) (n := 2 * k.val - 1) (by omega)).trans (oQ_pos d L fx (n := 2 * k.val - 1) (by have := hm1.2; rwa [show 2 * k.val + 1 - 2 = 2 * k.val - 1 by omega] at this))).symm)
            iapply (Entails.of_eq (congrArg (oqPiece d L fx) (show 2 * k.val + 1 - 2 = 2 * k.val - 1 by omega))); iexact F11_dst
          iapply (Entails.of_eq (oMix_core d L fx k.val)); iexact HOut
        isplitl [F8]
        · iapply (Entails.of_eq (congrArg (inSlotV d L fx a4 cc4_scratch4.sem) (show 2 * k.val + 2 = 2 * (k.val + 1) by ring)))
          iapply (fl_inV d L fx (off_6 L k v2) (k4_off6_inb L k k4_h3) v2 a4 cc4_scratch4.sem); iexists _, _
          isplitr
          rotate_left
          · iexact F8
          ipureintro; intro y; rfl
        isplitl [F10 H6]
        · iapply (Entails.of_eq (congrArg (outSlotV d L fx a6 cc4_scratch6.sem) (show 2 * k.val + 2 = 2 * (k.val + 1) by ring)))
          iapply (fl_outV d L fx (off_5 L k v0) (k4_off5_inb L k k4_h2) v0 a4 a6 cc4_scratch6.sem f0 g4 g6' hl6 hin4); iexists _
          isplitr
          rotate_left
          · isplitl [F10]; · iexact F10
            iexact H6
          ipureintro; intro y; rfl
        isplitl [F9]
        · iapply (Entails.of_eq (congrArg (inSlotV d L fx a5 cc4_scratch5.sem) (show 2 * k.val + 3 = 2 * (k.val + 1) + 1 by ring)))
          iapply (fl_inV d L fx (off_11 L k v3') (k4_off11_inb L k k4_h6) v3' a5 cc4_scratch5.sem); iexists _, _
          isplitr
          rotate_left
          · iexact F9
          ipureintro; intro y; rfl
        · iapply (Entails.of_eq (congrArg (outSlotV d L fx a7 cc4_scratch7.sem) (show 2 * k.val + 1 + 2 = 2 * (k.val + 1) + 1 by ring)))
          iapply (fl_outV d L fx (off_10 L k v1) (k4_off10_inb L k k4_h5) v1 a5 a7 cc4_scratch7.sem f1 g5 g7' hl7 hin5); iexists _
          isplitr
          rotate_left
          · isplitl [F11]; · iexact F11
            iexact H7
          ipureintro; intro y; rfl
      · by_cases h6 : k.val = 6
        · have hb : ¬ big L := fun hb => v3 (Or.inr ⟨by omega, hb⟩)
          -- trip 6 of a tile with fifteen pieces: no sixteenth piece to fetch
          have k4_h1 : k4_cond1 k = 1#1 := (cond1_iff k).mpr (by omega)
          have k4_h2 : k4_cond2 L k = 1#1 := cond2_iff L k
          have k4_h3 : k4_cond3 L k = 1#1 := (cond3_iff L k).mpr (by omega)
          have k4_h4 : k4_cond4 k = 1#1 := (cond4_iff k).mpr (by omega)
          have k4_h5 : k4_cond5 L k = 1#1 := (cond5_iff L k).mpr (by first | (unfold valid big at *; omega) | (unfold big at *; omega) | omega)
          have k4_h6 : ¬ k4_cond6 L k = 1#1 := fun h => absurd ((cond6_iff L k).mp h) (by first | (unfold valid big at *; omega) | (unfold big at *; omega) | omega)
          have v0 : valid L (2 * k.val) := by unfold valid big at *; omega
          have v1 : valid L (2 * k.val + 1) := by unfold valid big at *; omega
          have v2 : valid L (2 * k.val + 2) := by unfold valid big at *; omega
          have v3' : ¬ valid L (2 * k.val + 3) := by unfold valid big at *; omega
          have hm0 : 2 ≤ 2 * k.val ∧ valid L (2 * k.val - 2) := ⟨by omega, by unfold valid big at *; omega⟩
          have hm1 : 2 ≤ 2 * k.val + 1 ∧ valid L (2 * k.val + 1 - 2) := ⟨by omega, by unfold valid big at *; omega⟩
          ihave S8 := (Entails.of_eq (inSlotV_pos d L fx v0)) $$ S8
          icases S8 with ⟨%g4, %hin4, F8⟩
          ihave S9 := (Entails.of_eq (inSlotV_pos d L fx v1)) $$ S9
          icases S9 with ⟨%g5, %hin5, F9⟩
          ihave S10 := (Entails.of_eq (outSlotV_pos d L fx hm0)) $$ S10
          icases S10 with ⟨%g6, F10, R6⟩
          ihave S11 := (Entails.of_eq (outSlotV_pos d L fx hm1)) $$ S11
          icases S11 with ⟨%g7, F11, R7⟩
          ihave HX := (Entails.of_eq (xSet_out (xP d L fx) k.val hk)) $$ HX
          icases HX with ⟨X2, -, HX⟩
          ihave X2 := (Entails.of_eq (xP_pos d L fx v2)) $$ X2
          ihave X2 := (Entails.of_eq (in_congr d L (off_6 L k v2).symm (in_inb L _) (k4_off6_inb L k k4_h3) fx)) $$ X2
          ihave HOut := (Entails.of_eq (oSet_out (oMix d L fx k.val) k.val hk)) $$ HOut
          icases HOut with ⟨Y0, Y1, HOut⟩
          ihave Y0 := (Entails.of_eq ((oMix_ge d L fx (t := k.val) (n := 2 * k.val) (by omega)).trans (oP_pos (F := F) d L v0))) $$ Y0
          icases Y0 with ⟨%f0, Y0⟩
          ihave Y0 := (Entails.of_eq (out_congr d L (off_5 L k v0).symm (out_inb L _) (k4_off5_inb L k k4_h2) f0)) $$ Y0
          ihave Y1 := (Entails.of_eq ((oMix_ge d L fx (t := k.val) (n := 2 * k.val + 1) (by omega)).trans (oP_pos (F := F) d L v1))) $$ Y1
          icases Y1 with ⟨%f1, Y1⟩
          ihave Y1 := (Entails.of_eq (out_congr d L (off_10 L k v1).symm (out_inb L _) (k4_off10_inb L k k4_h5) f1)) $$ Y1
          sl_exec
          sl_for (laneV0 d L g4) $$ [F8_dst R6]
          case region =>
            intro (j : Fin k4_t2_loop.trips) _
            unfold laneV0
            iintro ⟨HA, %g, HB, %hl⟩
            sl_exec
            sl_step
            isplitl [HA]; · iexact HA
            iexists _; isplitl [HB]; · iexact HB
            ipureintro; exact lanes_step d L a4 a6 g4 g j _ _ hl
          · unfold laneV0
            isplitl [F8_dst]; · iexact F8_dst
            iexists _; isplitl [R6]; · iexact R6
            ipureintro; exact lanes_zero d L a4 a6 g4 _
          iintro %_ HI
          unfold laneV0
          icases HI with ⟨H4, %g6', H6, %hl6⟩
          have hl6 : Lanes d L a4 a6 g4 g6' 200 := Eq.mp (congrArg (Lanes d L a4 a6 g4 g6') trips2) hl6
          sl_exec
          sl_for (laneV1 d L g5) $$ [F9_dst R7]
          case region =>
            intro (j : Fin k4_t3_loop.trips) _
            unfold laneV1
            iintro ⟨HA, %g, HB, %hl⟩
            sl_exec
            sl_step
            isplitl [HA]; · iexact HA
            iexists _; isplitl [HB]; · iexact HB
            ipureintro; exact lanes_step' d L a5 a7 g5 g j _ _ hl
          · unfold laneV1
            isplitl [F9_dst]; · iexact F9_dst
            iexists _; isplitl [R7]; · iexact R7
            ipureintro; exact lanes_zero d L a5 a7 g5 _
          iintro %_ HI
          unfold laneV1
          icases HI with ⟨H5, %g7', H7, %hl7⟩
          have hl7 : Lanes d L a5 a7 g5 g7' 200 := Eq.mp (congrArg (Lanes d L a5 a7 g5 g7') trips3) hl7
          sl_exec
          sl_step
          isplitr; · iexact Hmw
          isplitl [HO]
          · iexists _; isplitr
            rotate_left
            · iexact HO
            ipureintro; intro p hp
            rcases Finset.mem_insert.mp hp with rfl | hp
            · exact .inr rfl
            rcases Finset.mem_insert.mp hp with rfl | hp
            · exact .inr rfl
            rcases Finset.mem_insert.mp hp with rfl | hp
            · exact .inr rfl
            rcases Finset.mem_insert.mp hp with rfl | hp
            · exact .inr rfl
            exact hW' p hp
          isplitl [HX F8_src F9_src]
          · iapply (Entails.of_eq (xSet_in (xP d L fx) k.val hk).symm)
            isplitl [F8_src]; · iapply (Entails.of_eq (xP_pos d L fx v0).symm); iexact F8_src
            isplitl [F9_src]; · iapply (Entails.of_eq (xP_pos d L fx v1).symm); iexact F9_src
            iexact HX
          isplitl [HOut F10_dst F11_dst]
          · iapply (Entails.of_eq (oSet_in (oMix d L fx (k.val + 1)) k.val hk (by omega)).symm)
            isplitl [F10_dst]; · iapply (Entails.of_eq ((oMix_lt d L fx (t := k.val + 1) (n := 2 * k.val - 2) (by omega)).trans (oQ_pos d L fx hm0.2)).symm); iexact F10_dst
            isplitl [F11_dst]
            · iapply (Entails.of_eq ((oMix_lt d L fx (t := k.val + 1) (n := 2 * k.val - 1) (by omega)).trans (oQ_pos d L fx (n := 2 * k.val - 1) (by have := hm1.2; rwa [show 2 * k.val + 1 - 2 = 2 * k.val - 1 by omega] at this))).symm)
              iapply (Entails.of_eq (congrArg (oqPiece d L fx) (show 2 * k.val + 1 - 2 = 2 * k.val - 1 by omega))); iexact F11_dst
            iapply (Entails.of_eq (oMix_core d L fx k.val)); iexact HOut
          isplitl [F8]
          · iapply (Entails.of_eq (congrArg (inSlotV d L fx a4 cc4_scratch4.sem) (show 2 * k.val + 2 = 2 * (k.val + 1) by ring)))
            iapply (fl_inV d L fx (off_6 L k v2) (k4_off6_inb L k k4_h3) v2 a4 cc4_scratch4.sem); iexists _, _
            isplitr
            rotate_left
            · iexact F8
            ipureintro; intro y; rfl
          isplitl [F10 H6]
          · iapply (Entails.of_eq (congrArg (outSlotV d L fx a6 cc4_scratch6.sem) (show 2 * k.val + 2 = 2 * (k.val + 1) by ring)))
            iapply (fl_outV d L fx (off_5 L k v0) (k4_off5_inb L k k4_h2) v0 a4 a6 cc4_scratch6.sem f0 g4 g6' hl6 hin4); iexists _
            isplitr
            rotate_left
            · isplitl [F10]; · iexact F10
              iexact H6
            ipureintro; intro y; rfl
          isplitl [H5 F9]
          · iapply (Entails.of_eq (congrArg (inSlotV d L fx a5 cc4_scratch5.sem) (show 2 * k.val + 3 = 2 * (k.val + 1) + 1 by ring)))
            iapply (Entails.of_eq (inSlotV_neg d L fx v3').symm)
            isplitl [H5]; · iexists _; iexact H5
            iexact F9
          · iapply (Entails.of_eq (congrArg (outSlotV d L fx a7 cc4_scratch7.sem) (show 2 * k.val + 1 + 2 = 2 * (k.val + 1) + 1 by ring)))
            iapply (fl_outV d L fx (off_10 L k v1) (k4_off10_inb L k k4_h5) v1 a5 a7 cc4_scratch7.sem f1 g5 g7' hl7 hin5); iexists _
            isplitr
            rotate_left
            · isplitl [F11]; · iexact F11
              iexact H7
            ipureintro; intro y; rfl
        · have h7 : k.val = 7 := by unfold valid at v3; omega
          by_cases hb : big L
          · -- the last trip of a tile with sixteen pieces: nothing more to fetch
            have k4_h1 : k4_cond1 k = 1#1 := (cond1_iff k).mpr (by omega)
            have k4_h2 : k4_cond2 L k = 1#1 := cond2_iff L k
            have k4_h3 : ¬ k4_cond3 L k = 1#1 := fun h => absurd ((cond3_iff L k).mp h) (by omega)
            have k4_h4 : k4_cond4 k = 1#1 := (cond4_iff k).mpr (by omega)
            have k4_h5 : k4_cond5 L k = 1#1 := (cond5_iff L k).mpr (by first | (unfold valid big at *; omega) | (unfold big at *; omega) | omega)
            have k4_h6 : ¬ k4_cond6 L k = 1#1 := fun h => absurd ((cond6_iff L k).mp h) (by first | (unfold valid big at *; omega) | (unfold big at *; omega) | omega)
            have v0 : valid L (2 * k.val) := by unfold valid big at *; omega
            have v1 : valid L (2 * k.val + 1) := by unfold valid big at *; omega
            have v2 : ¬ valid L (2 * k.val + 2) := by unfold valid big at *; omega
            have v3' : ¬ valid L (2 * k.val + 3) := by unfold valid big at *; omega
            have hm0 : 2 ≤ 2 * k.val ∧ valid L (2 * k.val - 2) := ⟨by omega, by unfold valid big at *; omega⟩
            have hm1 : 2 ≤ 2 * k.val + 1 ∧ valid L (2 * k.val + 1 - 2) := ⟨by omega, by unfold valid big at *; omega⟩
            ihave S8 := (Entails.of_eq (inSlotV_pos d L fx v0)) $$ S8
            icases S8 with ⟨%g4, %hin4, F8⟩
            ihave S9 := (Entails.of_eq (inSlotV_pos d L fx v1)) $$ S9
            icases S9 with ⟨%g5, %hin5, F9⟩
            ihave S10 := (Entails.of_eq (outSlotV_pos d L fx hm0)) $$ S10
            icases S10 with ⟨%g6, F10, R6⟩
            ihave S11 := (Entails.of_eq (outSlotV_pos d L fx hm1)) $$ S11
            icases S11 with ⟨%g7, F11, R7⟩
            ihave HX := (Entails.of_eq (xSet_out (xP d L fx) k.val hk)) $$ HX
            icases HX with ⟨-, -, HX⟩
            ihave HOut := (Entails.of_eq (oSet_out (oMix d L fx k.val) k.val hk)) $$ HOut
            icases HOut with ⟨Y0, Y1, HOut⟩
            ihave Y0 := (Entails.of_eq ((oMix_ge d L fx (t := k.val) (n := 2 * k.val) (by omega)).trans (oP_pos (F := F) d L v0))) $$ Y0
            icases Y0 with ⟨%f0, Y0⟩
            ihave Y0 := (Entails.of_eq (out_congr d L (off_5 L k v0).symm (out_inb L _) (k4_off5_inb L k k4_h2) f0)) $$ Y0
            ihave Y1 := (Entails.of_eq ((oMix_ge d L fx (t := k.val) (n := 2 * k.val + 1) (by omega)).trans (oP_pos (F := F) d L v1))) $$ Y1
            icases Y1 with ⟨%f1, Y1⟩
            ihave Y1 := (Entails.of_eq (out_congr d L (off_10 L k v1).symm (out_inb L _) (k4_off10_inb L k k4_h5) f1)) $$ Y1
            sl_exec
            sl_for (laneV0 d L g4) $$ [F8_dst R6]
            case region =>
              intro (j : Fin k4_t2_loop.trips) _
              unfold laneV0
              iintro ⟨HA, %g, HB, %hl⟩
              sl_exec
              sl_step
              isplitl [HA]; · iexact HA
              iexists _; isplitl [HB]; · iexact HB
              ipureintro; exact lanes_step d L a4 a6 g4 g j _ _ hl
            · unfold laneV0
              isplitl [F8_dst]; · iexact F8_dst
              iexists _; isplitl [R6]; · iexact R6
              ipureintro; exact lanes_zero d L a4 a6 g4 _
            iintro %_ HI
            unfold laneV0
            icases HI with ⟨H4, %g6', H6, %hl6⟩
            have hl6 : Lanes d L a4 a6 g4 g6' 200 := Eq.mp (congrArg (Lanes d L a4 a6 g4 g6') trips2) hl6
            sl_exec
            sl_for (laneV1 d L g5) $$ [F9_dst R7]
            case region =>
              intro (j : Fin k4_t3_loop.trips) _
              unfold laneV1
              iintro ⟨HA, %g, HB, %hl⟩
              sl_exec
              sl_step
              isplitl [HA]; · iexact HA
              iexists _; isplitl [HB]; · iexact HB
              ipureintro; exact lanes_step' d L a5 a7 g5 g j _ _ hl
            · unfold laneV1
              isplitl [F9_dst]; · iexact F9_dst
              iexists _; isplitl [R7]; · iexact R7
              ipureintro; exact lanes_zero d L a5 a7 g5 _
            iintro %_ HI
            unfold laneV1
            icases HI with ⟨H5, %g7', H7, %hl7⟩
            have hl7 : Lanes d L a5 a7 g5 g7' 200 := Eq.mp (congrArg (Lanes d L a5 a7 g5 g7') trips3) hl7
            sl_exec
            sl_step
            isplitr; · iexact Hmw
            isplitl [HO]
            · iexists _; isplitr
              rotate_left
              · iexact HO
              ipureintro; intro p hp
              rcases Finset.mem_insert.mp hp with rfl | hp
              · exact .inr rfl
              rcases Finset.mem_insert.mp hp with rfl | hp
              · exact .inr rfl
              rcases Finset.mem_insert.mp hp with rfl | hp
              · exact .inr rfl
              rcases Finset.mem_insert.mp hp with rfl | hp
              · exact .inr rfl
              exact hW' p hp
            isplitl [HX F8_src F9_src]
            · iapply (Entails.of_eq (xSet_in (xP d L fx) k.val hk).symm)
              isplitl [F8_src]; · iapply (Entails.of_eq (xP_pos d L fx v0).symm); iexact F8_src
              isplitl [F9_src]; · iapply (Entails.of_eq (xP_pos d L fx v1).symm); iexact F9_src
              iexact HX
            isplitl [HOut F10_dst F11_dst]
            · iapply (Entails.of_eq (oSet_in (oMix d L fx (k.val + 1)) k.val hk (by omega)).symm)
              isplitl [F10_dst]; · iapply (Entails.of_eq ((oMix_lt d L fx (t := k.val + 1) (n := 2 * k.val - 2) (by omega)).trans (oQ_pos d L fx hm0.2)).symm); iexact F10_dst
              isplitl [F11_dst]
              · iapply (Entails.of_eq ((oMix_lt d L fx (t := k.val + 1) (n := 2 * k.val - 1) (by omega)).trans (oQ_pos d L fx (n := 2 * k.val - 1) (by have := hm1.2; rwa [show 2 * k.val + 1 - 2 = 2 * k.val - 1 by omega] at this))).symm)
                iapply (Entails.of_eq (congrArg (oqPiece d L fx) (show 2 * k.val + 1 - 2 = 2 * k.val - 1 by omega))); iexact F11_dst
              iapply (Entails.of_eq (oMix_core d L fx k.val)); iexact HOut
            isplitl [H4 F8]
            · iapply (Entails.of_eq (congrArg (inSlotV d L fx a4 cc4_scratch4.sem) (show 2 * k.val + 2 = 2 * (k.val + 1) by ring)))
              iapply (Entails.of_eq (inSlotV_neg d L fx v2).symm)
              isplitl [H4]; · iexists _; iexact H4
              iexact F8
            isplitl [F10 H6]
            · iapply (Entails.of_eq (congrArg (outSlotV d L fx a6 cc4_scratch6.sem) (show 2 * k.val + 2 = 2 * (k.val + 1) by ring)))
              iapply (fl_outV d L fx (off_5 L k v0) (k4_off5_inb L k k4_h2) v0 a4 a6 cc4_scratch6.sem f0 g4 g6' hl6 hin4); iexists _
              isplitr
              rotate_left
              · isplitl [F10]; · iexact F10
                iexact H6
              ipureintro; intro y; rfl
            isplitl [H5 F9]
            · iapply (Entails.of_eq (congrArg (inSlotV d L fx a5 cc4_scratch5.sem) (show 2 * k.val + 3 = 2 * (k.val + 1) + 1 by ring)))
              iapply (Entails.of_eq (inSlotV_neg d L fx v3').symm)
              isplitl [H5]; · iexists _; iexact H5
              iexact F9
            · iapply (Entails.of_eq (congrArg (outSlotV d L fx a7 cc4_scratch7.sem) (show 2 * k.val + 1 + 2 = 2 * (k.val + 1) + 1 by ring)))
              iapply (fl_outV d L fx (off_10 L k v1) (k4_off10_inb L k k4_h5) v1 a5 a7 cc4_scratch7.sem f1 g5 g7' hl7 hin5); iexists _
              isplitr
              rotate_left
              · isplitl [F11]; · iexact F11
                iexact H7
              ipureintro; intro y; rfl
          · -- the last trip of a tile with fifteen pieces: the second slot only drains
            have k4_h1 : k4_cond1 k = 1#1 := (cond1_iff k).mpr (by omega)
            have k4_h2 : k4_cond2 L k = 1#1 := cond2_iff L k
            have k4_h3 : ¬ k4_cond3 L k = 1#1 := fun h => absurd ((cond3_iff L k).mp h) (by omega)
            have k4_h4 : k4_cond4 k = 1#1 := (cond4_iff k).mpr (by omega)
            have k4_h5 : ¬ k4_cond5 L k = 1#1 := fun h => absurd ((cond5_iff L k).mp h) (by first | (unfold valid big at *; omega) | (unfold big at *; omega) | omega)
            have k4_h6 : ¬ k4_cond6 L k = 1#1 := fun h => absurd ((cond6_iff L k).mp h) (by first | (unfold valid big at *; omega) | (unfold big at *; omega) | omega)
            have v0 : valid L (2 * k.val) := by unfold valid big at *; omega
            have v1 : ¬ valid L (2 * k.val + 1) := by unfold valid big at *; omega
            have v2 : ¬ valid L (2 * k.val + 2) := by unfold valid big at *; omega
            have v3' : ¬ valid L (2 * k.val + 3) := by unfold valid big at *; omega
            have hm0 : 2 ≤ 2 * k.val ∧ valid L (2 * k.val - 2) := ⟨by omega, by unfold valid big at *; omega⟩
            have hm1 : 2 ≤ 2 * k.val + 1 ∧ valid L (2 * k.val + 1 - 2) := ⟨by omega, by unfold valid big at *; omega⟩
            ihave S8 := (Entails.of_eq (inSlotV_pos d L fx v0)) $$ S8
            icases S8 with ⟨%g4, %hin4, F8⟩
            ihave S9 := (Entails.of_eq (inSlotV_neg d L fx v1)) $$ S9
            icases S9 with ⟨⟨%g5, H5⟩, F9⟩
            ihave S10 := (Entails.of_eq (outSlotV_pos d L fx hm0)) $$ S10
            icases S10 with ⟨%g6, F10, R6⟩
            ihave S11 := (Entails.of_eq (outSlotV_pos d L fx hm1)) $$ S11
            icases S11 with ⟨%g7, F11, R7⟩
            ihave HX := (Entails.of_eq (xSet_out (xP d L fx) k.val hk)) $$ HX
            icases HX with ⟨-, -, HX⟩
            ihave HOut := (Entails.of_eq (oSet_out (oMix d L fx k.val) k.val hk)) $$ HOut
            icases HOut with ⟨Y0, -, HOut⟩
            ihave Y0 := (Entails.of_eq ((oMix_ge d L fx (t := k.val) (n := 2 * k.val) (by omega)).trans (oP_pos (F := F) d L v0))) $$ Y0
            icases Y0 with ⟨%f0, Y0⟩
            ihave Y0 := (Entails.of_eq (out_congr d L (off_5 L k v0).symm (out_inb L _) (k4_off5_inb L k k4_h2) f0)) $$ Y0
            sl_exec
            sl_for (laneV0 d L g4) $$ [F8_dst R6]
            case region =>
              intro (j : Fin k4_t2_loop.trips) _
              unfold laneV0
              iintro ⟨HA, %g, HB, %hl⟩
              sl_exec
              sl_step
              isplitl [HA]; · iexact HA
              iexists _; isplitl [HB]; · iexact HB
              ipureintro; exact lanes_step d L a4 a6 g4 g j _ _ hl
            · unfold laneV0
              isplitl [F8_dst]; · iexact F8_dst
              iexists _; isplitl [R6]; · iexact R6
              ipureintro; exact lanes_zero d L a4 a6 g4 _
            iintro %_ HI
            unfold laneV0
            icases HI with ⟨H4, %g6', H6, %hl6⟩
            have hl6 : Lanes d L a4 a6 g4 g6' 200 := Eq.mp (congrArg (Lanes d L a4 a6 g4 g6') trips2) hl6
            sl_exec
            sl_step
            isplitr; · iexact Hmw
            isplitl [HO]
            · iexists _; isplitr
              rotate_left
              · iexact HO
              ipureintro; intro p hp
              rcases Finset.mem_insert.mp hp with rfl | hp
              · exact .inr rfl
              rcases Finset.mem_insert.mp hp with rfl | hp
              · exact .inr rfl
              rcases Finset.mem_insert.mp hp with rfl | hp
              · exact .inr rfl
              exact hW' p hp
            isplitl [HX F8_src]
            · iapply (Entails.of_eq (xSet_in (xP d L fx) k.val hk).symm)
              isplitl [F8_src]; · iapply (Entails.of_eq (xP_pos d L fx v0).symm); iexact F8_src
              isplitr; · iapply (Entails.of_eq (xP_neg d L fx v1).symm); iempintro
              iexact HX
            isplitl [HOut F10_dst F11_dst]
            · iapply (Entails.of_eq (oSet_in (oMix d L fx (k.val + 1)) k.val hk (by omega)).symm)
              isplitl [F10_dst]; · iapply (Entails.of_eq ((oMix_lt d L fx (t := k.val + 1) (n := 2 * k.val - 2) (by omega)).trans (oQ_pos d L fx hm0.2)).symm); iexact F10_dst
              isplitl [F11_dst]
              · iapply (Entails.of_eq ((oMix_lt d L fx (t := k.val + 1) (n := 2 * k.val - 1) (by omega)).trans (oQ_pos d L fx (n := 2 * k.val - 1) (by have := hm1.2; rwa [show 2 * k.val + 1 - 2 = 2 * k.val - 1 by omega] at this))).symm)
                iapply (Entails.of_eq (congrArg (oqPiece d L fx) (show 2 * k.val + 1 - 2 = 2 * k.val - 1 by omega))); iexact F11_dst
              iapply (Entails.of_eq (oMix_core d L fx k.val)); iexact HOut
            isplitl [H4 F8]
            · iapply (Entails.of_eq (congrArg (inSlotV d L fx a4 cc4_scratch4.sem) (show 2 * k.val + 2 = 2 * (k.val + 1) by ring)))
              iapply (Entails.of_eq (inSlotV_neg d L fx v2).symm)
              isplitl [H4]; · iexists _; iexact H4
              iexact F8
            isplitl [F10 H6]
            · iapply (Entails.of_eq (congrArg (outSlotV d L fx a6 cc4_scratch6.sem) (show 2 * k.val + 2 = 2 * (k.val + 1) by ring)))
              iapply (fl_outV d L fx (off_5 L k v0) (k4_off5_inb L k k4_h2) v0 a4 a6 cc4_scratch6.sem f0 g4 g6' hl6 hin4); iexists _
              isplitr
              rotate_left
              · isplitl [F10]; · iexact F10
                iexact H6
              ipureintro; intro y; rfl
            isplitl [H5 F9]
            · iapply (Entails.of_eq (congrArg (inSlotV d L fx a5 cc4_scratch5.sem) (show 2 * k.val + 3 = 2 * (k.val + 1) + 1 by ring)))
              iapply (Entails.of_eq (inSlotV_neg d L fx v3').symm)
              isplitl [H5]; · iexists _; iexact H5
              iexact F9
            · iapply (Entails.of_eq (outSlotV_neg d L fx (m := 2 * (k.val + 1) + 1) (by intro h; apply v1; have := h.2; rwa [show 2 * (k.val + 1) + 1 - 2 = 2 * k.val + 1 by omega] at this)).symm)
              isplitl [R7]; · iexists _; iexact R7
              iexact F11
    · have hk0 : k.val = 0 := by omega
      -- the first trip: nothing to drain
      have k4_h1 : ¬ k4_cond1 k = 1#1 := fun h => absurd ((cond1_iff k).mp h) (by omega)
      have k4_h2 : k4_cond2 L k = 1#1 := cond2_iff L k
      have k4_h3 : k4_cond3 L k = 1#1 := (cond3_iff L k).mpr (by omega)
      have k4_h4 : ¬ k4_cond4 k = 1#1 := fun h => absurd ((cond4_iff k).mp h) (by omega)
      have k4_h5 : k4_cond5 L k = 1#1 := (cond5_iff L k).mpr (by first | (unfold valid big at *; omega) | (unfold big at *; omega) | omega)
      have k4_h6 : k4_cond6 L k = 1#1 := (cond6_iff L k).mpr (by first | (unfold valid big at *; omega) | (unfold big at *; omega) | omega)
      have v0 : valid L (2 * k.val) := by unfold valid big at *; omega
      have v1 : valid L (2 * k.val + 1) := by unfold valid big at *; omega
      have v2 : valid L (2 * k.val + 2) := by unfold valid big at *; omega
      have v3' : valid L (2 * k.val + 3) := by unfold valid big at *; omega
      have hm0 : ¬ (2 ≤ 2 * k.val ∧ valid L (2 * k.val - 2)) := by omega
      have hm1 : ¬ (2 ≤ 2 * k.val + 1 ∧ valid L (2 * k.val + 1 - 2)) := by omega
      ihave S8 := (Entails.of_eq (inSlotV_pos d L fx v0)) $$ S8
      icases S8 with ⟨%g4, %hin4, F8⟩
      ihave S9 := (Entails.of_eq (inSlotV_pos d L fx v1)) $$ S9
      icases S9 with ⟨%g5, %hin5, F9⟩
      ihave S10 := (Entails.of_eq (outSlotV_neg d L fx hm0)) $$ S10
      icases S10 with ⟨⟨%g6, R6⟩, F10⟩
      ihave S11 := (Entails.of_eq (outSlotV_neg d L fx hm1)) $$ S11
      icases S11 with ⟨⟨%g7, R7⟩, F11⟩
      ihave HX := (Entails.of_eq (xSet_out (xP d L fx) k.val hk)) $$ HX
      icases HX with ⟨X2, X3, HX⟩
      ihave X2 := (Entails.of_eq (xP_pos d L fx v2)) $$ X2
      ihave X2 := (Entails.of_eq (in_congr d L (off_6 L k v2).symm (in_inb L _) (k4_off6_inb L k k4_h3) fx)) $$ X2
      ihave X3 := (Entails.of_eq (xP_pos d L fx v3')) $$ X3
      ihave X3 := (Entails.of_eq (in_congr d L (off_11 L k v3').symm (in_inb L _) (k4_off11_inb L k k4_h6) fx)) $$ X3
      ihave HOut := (Entails.of_eq (oSet_out (oMix d L fx k.val) k.val hk)) $$ HOut
      icases HOut with ⟨Y0, Y1, HOut⟩
      ihave Y0 := (Entails.of_eq ((oMix_ge d L fx (t := k.val) (n := 2 * k.val) (by omega)).trans (oP_pos (F := F) d L v0))) $$ Y0
      icases Y0 with ⟨%f0, Y0⟩
      ihave Y0 := (Entails.of_eq (out_congr d L (off_5 L k v0).symm (out_inb L _) (k4_off5_inb L k k4_h2) f0)) $$ Y0
      ihave Y1 := (Entails.of_eq ((oMix_ge d L fx (t := k.val) (n := 2 * k.val + 1) (by omega)).trans (oP_pos (F := F) d L v1))) $$ Y1
      icases Y1 with ⟨%f1, Y1⟩
      ihave Y1 := (Entails.of_eq (out_congr d L (off_10 L k v1).symm (out_inb L _) (k4_off10_inb L k k4_h5) f1)) $$ Y1
      sl_exec
      sl_for (laneV0 d L g4) $$ [F8_dst R6]
      case region =>
        intro (j : Fin k4_t2_loop.trips) _
        unfold laneV0
        iintro ⟨HA, %g, HB, %hl⟩
        sl_exec
        sl_step
        isplitl [HA]; · iexact HA
        iexists _; isplitl [HB]; · iexact HB
        ipureintro; exact lanes_step d L a4 a6 g4 g j _ _ hl
      · unfold laneV0
        isplitl [F8_dst]; · iexact F8_dst
        iexists _; isplitl [R6]; · iexact R6
        ipureintro; exact lanes_zero d L a4 a6 g4 _
      iintro %_ HI
      unfold laneV0
      icases HI with ⟨H4, %g6', H6, %hl6⟩
      have hl6 : Lanes d L a4 a6 g4 g6' 200 := Eq.mp (congrArg (Lanes d L a4 a6 g4 g6') trips2) hl6
      sl_exec
      sl_for (laneV1 d L g5) $$ [F9_dst R7]
      case region =>
        intro (j : Fin k4_t3_loop.trips) _
        unfold laneV1
        iintro ⟨HA, %g, HB, %hl⟩
        sl_exec
        sl_step
        isplitl [HA]; · iexact HA
        iexists _; isplitl [HB]; · iexact HB
        ipureintro; exact lanes_step' d L a5 a7 g5 g j _ _ hl
      · unfold laneV1
        isplitl [F9_dst]; · iexact F9_dst
        iexists _; isplitl [R7]; · iexact R7
        ipureintro; exact lanes_zero d L a5 a7 g5 _
      iintro %_ HI
      unfold laneV1
      icases HI with ⟨H5, %g7', H7, %hl7⟩
      have hl7 : Lanes d L a5 a7 g5 g7' 200 := Eq.mp (congrArg (Lanes d L a5 a7 g5 g7') trips3) hl7
      sl_exec
      sl_step
      isplitr; · iexact Hmw
      isplitl [HO]
      · iexists _; isplitr
        rotate_left
        · iexact HO
        ipureintro; intro p hp
        rcases Finset.mem_insert.mp hp with rfl | hp
        · exact .inr rfl
        rcases Finset.mem_insert.mp hp with rfl | hp
        · exact .inr rfl
        exact hW' p hp
      isplitl [HX F8_src F9_src]
      · iapply (Entails.of_eq (xSet_in (xP d L fx) k.val hk).symm)
        isplitl [F8_src]; · iapply (Entails.of_eq (xP_pos d L fx v0).symm); iexact F8_src
        isplitl [F9_src]; · iapply (Entails.of_eq (xP_pos d L fx v1).symm); iexact F9_src
        iexact HX
      isplitl [HOut]
      · iapply (Entails.of_eq (congrArg (fun s => bigSep s (oMix d L fx (k.val + 1))) (show oCore k.val = oSet (k.val + 1) by rw [hk0]; decide)))
        iapply (Entails.of_eq (oMix_core d L fx k.val)); iexact HOut
      isplitl [F8]
      · iapply (Entails.of_eq (congrArg (inSlotV d L fx a4 cc4_scratch4.sem) (show 2 * k.val + 2 = 2 * (k.val + 1) by ring)))
        iapply (fl_inV d L fx (off_6 L k v2) (k4_off6_inb L k k4_h3) v2 a4 cc4_scratch4.sem); iexists _, _
        isplitr
        rotate_left
        · iexact F8
        ipureintro; intro y; rfl
      isplitl [F10 H6]
      · iapply (Entails.of_eq (congrArg (outSlotV d L fx a6 cc4_scratch6.sem) (show 2 * k.val + 2 = 2 * (k.val + 1) by ring)))
        iapply (fl_outV d L fx (off_5 L k v0) (k4_off5_inb L k k4_h2) v0 a4 a6 cc4_scratch6.sem f0 g4 g6' hl6 hin4); iexists _
        isplitr
        rotate_left
        · isplitl [F10]; · iexact F10
          iexact H6
        ipureintro; intro y; rfl
      isplitl [F9]
      · iapply (Entails.of_eq (congrArg (inSlotV d L fx a5 cc4_scratch5.sem) (show 2 * k.val + 3 = 2 * (k.val + 1) + 1 by ring)))
        iapply (fl_inV d L fx (off_11 L k v3') (k4_off11_inb L k k4_h6) v3' a5 cc4_scratch5.sem); iexists _, _
        isplitr
        rotate_left
        · iexact F9
        ipureintro; intro y; rfl
      · iapply (Entails.of_eq (congrArg (outSlotV d L fx a7 cc4_scratch7.sem) (show 2 * k.val + 1 + 2 = 2 * (k.val + 1) + 1 by ring)))
        iapply (fl_outV d L fx (off_10 L k v1) (k4_off10_inb L k k4_h5) v1 a5 a7 cc4_scratch7.sem f1 g5 g7' hl7 hin5); iexists _
        isplitr
        rotate_left
        · isplitl [F11]; · iexact F11
          iexact H7
        ipureintro; intro y; rfl
  · unfold invV
    isplitr; · iexact Hmw
    isplitl [HO]
    · iexists W; isplitr
      · ipureintro; exact fun p hp => .inl hp
      · iexact HO
    isplitl [HX]; · iexact HX
    isplitl [HOut]; · iapply (Entails.of_eq (oMix_zero d L fx).symm); iexact HOut
    isplitl [S8]; · iexact S8
    isplitl [H6 Hs10]
    · rw [outSlotV_neg d L fx (by omega)]; isplitl [H6]; · iexists _; iexact H6
      iexact Hs10
    isplitl [S9]; · iexact S9
    rw [outSlotV_neg d L fx (by omega)]; isplitl [H7]; · iexists _; iexact H7
    iexact Hs11
  iintro %acc' HI
  ihave HI := (Entails.of_eq (congrArg (fun t => invV d L O W fx t acc') trips1)) $$ HI
  unfold invV
  icases HI with ⟨-, ⟨%W', %hW', HO⟩, HX, HOut, S8, S10, S9, S11⟩
  have nv16 : ¬ valid L (2 * 8) := by unfold valid; omega
  have nv17 : ¬ valid L (2 * 8 + 1) := by unfold valid; omega
  have hm14 : 2 ≤ 2 * 8 ∧ valid L (2 * 8 - 2) := ⟨by omega, Or.inl (by omega)⟩
  ihave S8 := (Entails.of_eq (inSlotV_neg d L fx nv16)) $$ S8
  icases S8 with ⟨⟨%g4', H4⟩, Hs8⟩
  ihave S9 := (Entails.of_eq (inSlotV_neg d L fx nv17)) $$ S9
  icases S9 with ⟨⟨%g5', H5⟩, Hs9⟩
  ihave S10 := (Entails.of_eq (outSlotV_pos d L fx hm14)) $$ S10
  icases S10 with ⟨%g6', F10, R6⟩
  by_cases hb : big L
  · have k4_h8 : k4_cond8 L = 1#1 := (cond8_iff L).mpr hb
    have hm15 : 2 ≤ 2 * 8 + 1 ∧ valid L (2 * 8 + 1 - 2) := ⟨by omega, Or.inr ⟨by omega, hb⟩⟩
    ihave S11 := (Entails.of_eq (outSlotV_pos d L fx hm15)) $$ S11
    icases S11 with ⟨%g7', F11, R7⟩
    sl_exec
    sl_step
    isplitl [HX]; · iapply (xRange_end d L fx); iexact HX
    isplitl [HOut F10_dst F11_dst]
    · iapply (Entails.of_eq (oRange_end (oQ d L fx)).symm)
      isplitl [F10_dst]; · iapply (Entails.of_eq (oQ_pos d L fx hm14.2).symm); iexact F10_dst
      isplitl [F11_dst]; · iapply (Entails.of_eq (oQ_pos d L fx hm15.2).symm); iexact F11_dst
      iapply (Entails.of_eq (oMix_end d L fx)); iexact HOut
    isplitl [H4]; · iexists _; iexact H4
    isplitl [H5]; · iexists _; iexact H5
    isplitl [R6]; · iexists _; iexact R6
    isplitl [R7]; · iexists _; iexact R7
    isplitl [Hs8]; · iexact Hs8
    isplitl [Hs9]; · iexact Hs9
    isplitl [F10]; · iexact F10
    isplitl [F11]; · iexact F11
    isplitl [HO]
    · iexists _; isplitr
      rotate_left
      · iexact HO
      ipureintro; intro p hp
      rcases Finset.mem_insert.mp hp with rfl | hp
      · exact .inr rfl
      rcases Finset.mem_insert.mp hp with rfl | hp
      · exact .inr rfl
      exact hW' p hp
    iexact HR
  · have k4_h8 : ¬ k4_cond8 L = 1#1 := fun h => hb ((cond8_iff L).mp h)
    have hm15 : ¬ (2 ≤ 2 * 8 + 1 ∧ valid L (2 * 8 + 1 - 2)) := by intro h; have := h.2; unfold valid at this; omega
    ihave S11 := (Entails.of_eq (outSlotV_neg d L fx hm15)) $$ S11
    icases S11 with ⟨⟨%g7', R7⟩, F11⟩
    sl_exec
    sl_step
    isplitl [HX]; · iapply (xRange_end d L fx); iexact HX
    isplitl [HOut F10_dst]
    · iapply (Entails.of_eq (oRange_end (oQ d L fx)).symm)
      isplitl [F10_dst]; · iapply (Entails.of_eq (oQ_pos d L fx hm14.2).symm); iexact F10_dst
      isplitr; · iapply (Entails.of_eq (oQ_neg d L fx (n := 15) (by unfold valid; omega)).symm); iempintro
      iapply (Entails.of_eq (oMix_end d L fx)); iexact HOut
    isplitl [H4]; · iexists _; iexact H4
    isplitl [H5]; · iexists _; iexact H5
    isplitl [R6]; · iexists _; iexact R6
    isplitl [R7]; · iexists _; iexact R7
    isplitl [Hs8]; · iexact Hs8
    isplitl [Hs9]; · iexact Hs9
    isplitl [F10]; · iexact F10
    isplitl [F11]; · iexact F11
    isplitl [HO]
    · iexists _; isplitr
      rotate_left
      · iexact HO
      ipureintro; intro p hp
      rcases Finset.mem_insert.mp hp with rfl | hp
      · exact .inr rfl
      exact hW' p hp
    iexact HR

/-! The subcore's scoped storage: the four staging buffers and the four semaphores of this call, and the rest. -/

abbrev c8 : GSem nD τ sig := (thr d L, SemLoc.dma cc4_scratch4.sem)
abbrev c9 : GSem nD τ sig := (thr d L, SemLoc.dma cc4_scratch5.sem)
abbrev c10 : GSem nD τ sig := (thr d L, SemLoc.dma cc4_scratch6.sem)
abbrev c11 : GSem nD τ sig := (thr d L, SemLoc.dma cc4_scratch7.sem)

omit [FloatOps F] in
theorem ownSems0_V :
    (ownSems0 (thr d L) : sProp 𝕄)
      = iprop(semVal (c8 d L) 0 ∗ semVal (c9 d L) 0 ∗ semVal (c10 d L) 0 ∗ semVal (c11 d L) 0
          ∗ bigSep (((((ownCells (thr d L)).erase (c8 d L)).erase (c9 d L)).erase (c10 d L)).erase (c11 d L)) fun g => semVal g 0) := by
  unfold SparseCore.Cfg.ownSems0
  rw [SparseCore.bigSep_erase' ((mem_ownCells (g := c8 d L)).mpr ⟨rfl, by
      show (SemLoc.dma cc4_scratch4.sem : SemLoc sig).isScoped .scVector = true; decide⟩),
    SparseCore.bigSep_erase' (Finset.mem_erase.mpr ⟨fun e => absurd (Prod.mk.inj e).2 (by decide), (mem_ownCells (g := c9 d L)).mpr ⟨rfl, by
      show (SemLoc.dma cc4_scratch5.sem : SemLoc sig).isScoped .scVector = true; decide⟩⟩),
    SparseCore.bigSep_erase' (Finset.mem_erase.mpr ⟨fun e => absurd (Prod.mk.inj e).2 (by decide), Finset.mem_erase.mpr ⟨fun e => absurd (Prod.mk.inj e).2 (by decide),
      (mem_ownCells (g := c10 d L)).mpr ⟨rfl, by show (SemLoc.dma cc4_scratch6.sem : SemLoc sig).isScoped .scVector = true; decide⟩⟩⟩),
    SparseCore.bigSep_erase' (Finset.mem_erase.mpr ⟨fun e => absurd (Prod.mk.inj e).2 (by decide), Finset.mem_erase.mpr ⟨fun e => absurd (Prod.mk.inj e).2 (by decide),
      Finset.mem_erase.mpr ⟨fun e => absurd (Prod.mk.inj e).2 (by decide),
      (mem_ownCells (g := c11 d L)).mpr ⟨rfl, by show (SemLoc.dma cc4_scratch7.sem : SemLoc sig).isScoped .scVector = true; decide⟩⟩⟩⟩)]

abbrev pV (L : grid4.Coords) : Proc τ := Proc.scVector (cV L) (jV L)

omit [FloatOps F] in
theorem ownBufs_V :
    (ownBufs (thr d L) : sProp 𝕄)
      = iprop((∃ f, (thr d L).loc cc4_scratch0 ↦{fullShare} f) ∗ (∃ f, (thr d L).loc cc4_scratch1 ↦{fullShare} f)
          ∗ (∃ f, (thr d L).loc cc4_scratch2 ↦{fullShare} f) ∗ (∃ f, (thr d L).loc cc4_scratch3 ↦{fullShare} f)
          ∗ bigSep (((((ownRefs (τ := τ) (pV L)).erase ((pV L).devRef cc4_scratch0)).erase ((pV L).devRef cc4_scratch1)).erase
              ((pV L).devRef cc4_scratch2)).erase ((pV L).devRef cc4_scratch3))
              fun b => iprop(∃ f, ((d, b) : Loc nD τ sig) ↦{fullShare} f)) := by
  unfold SparseCore.Cfg.ownBufs
  refine (SparseCore.bigSep_erase' (SparseCore.Cfg.mem_ownRefs_of_owner (p := pV L) (b := (pV L).devRef cc4_scratch0) rfl)).trans ?_
  rw [SparseCore.bigSep_erase' (Finset.mem_erase.mpr ⟨fun e => absurd (Proc.devRef_injective _ e) (show (cc4_scratch1 : Ref sig .scVector) ≠ cc4_scratch0 by decide),
      SparseCore.Cfg.mem_ownRefs_of_owner (p := pV L) (b := (pV L).devRef cc4_scratch1) rfl⟩),
    SparseCore.bigSep_erase' (Finset.mem_erase.mpr ⟨fun e => absurd (Proc.devRef_injective _ e) (show (cc4_scratch2 : Ref sig .scVector) ≠ cc4_scratch1 by decide),
      Finset.mem_erase.mpr ⟨fun e => absurd (Proc.devRef_injective _ e) (show (cc4_scratch2 : Ref sig .scVector) ≠ cc4_scratch0 by decide),
      SparseCore.Cfg.mem_ownRefs_of_owner (p := pV L) (b := (pV L).devRef cc4_scratch2) rfl⟩⟩),
    SparseCore.bigSep_erase' (Finset.mem_erase.mpr ⟨fun e => absurd (Proc.devRef_injective _ e) (show (cc4_scratch3 : Ref sig .scVector) ≠ cc4_scratch2 by decide),
      Finset.mem_erase.mpr ⟨fun e => absurd (Proc.devRef_injective _ e) (show (cc4_scratch3 : Ref sig .scVector) ≠ cc4_scratch1 by decide),
      Finset.mem_erase.mpr ⟨fun e => absurd (Proc.devRef_injective _ e) (show (cc4_scratch3 : Ref sig .scVector) ≠ cc4_scratch0 by decide),
      SparseCore.Cfg.mem_ownRefs_of_owner (p := pV L) (b := (pV L).devRef cc4_scratch3) rfl⟩⟩⟩)]

/-- The rest of the subcore's scoped storage, which the task does not touch. -/
def restR : sProp 𝕄 :=
  iprop((bigSep (((((ownRefs (τ := τ) (pV L)).erase ((pV L).devRef cc4_scratch0)).erase ((pV L).devRef cc4_scratch1)).erase
              ((pV L).devRef cc4_scratch2)).erase ((pV L).devRef cc4_scratch3))
              fun b => iprop(∃ f, ((d, b) : Loc nD τ sig) ↦{fullShare} f))
      ∗ bigSep (((((ownCells (thr d L)).erase (c8 d L)).erase (c9 d L)).erase (c10 d L)).erase (c11 d L)) fun g => semVal g 0)

theorem body_pre (hO : ∀ g, O g none = 0) :
    iprop(levAts (K (F := F)).L (K (F := F)).lev ∗ emp ∗ goRes d L fx ∗ ownBufs (thr d L) ∗ ownSems0 (thr d L) ∗ owes (thr d L) O W)
      ⊢ runPre d L O W fx (restR (F := F) d L) := by
  rw [ownSems0_V, ownBufs_V]
  unfold goRes runPre restR
  iintro ⟨#Hlv, -, ⟨HX, HOut⟩, ⟨H4, H5, H6, H7, Hbufs⟩, ⟨Hs8, Hs9, Hs10, Hs11, Hsems⟩, HO⟩
  ihave Hmw := ((K (F := F)).mayWaits_none (thr := thr d L) hO) $$ Hlv
  isplitr; · iexact Hmw
  isplitl [HO]; · iexact HO
  isplitl [HX]; · iexact HX
  isplitl [HOut]; · iexact HOut
  isplitl [H4]; · iexact H4
  isplitl [H5]; · iexact H5
  isplitl [H6]; · iexact H6
  isplitl [H7]; · iexact H7
  isplitl [Hs8]; · iexact Hs8
  isplitl [Hs9]; · iexact Hs9
  isplitl [Hs10]; · iexact Hs10
  isplitl [Hs11]; · iexact Hs11
  isplitl [Hbufs]; · iexact Hbufs
  iexact Hsems

theorem body_post :
    runPost d L O W fx (restR (F := F) d L)
      ⊢ iprop(tdRes d L fx ∗ ownBufs (thr d L) ∗ ownSems0 (thr d L) ∗ ∃ W', ⌜∀ p ∈ W', p ∈ W ∨ p.2 = none⌝ ∗ owes (thr d L) O W') := by
  rw [ownSems0_V, ownBufs_V]
  unfold tdRes runPost restR
  iintro ⟨HX, HOut, H4, H5, H6, H7, Hs8, Hs9, Hs10, Hs11, HW, Hbufs, Hsems⟩
  isplitl [HX HOut]
  · isplitl [HX]; · iexact HX
    iexact HOut
  isplitl [H4 H5 H6 H7 Hbufs]
  · isplitl [H4]; · iexact H4
    isplitl [H5]; · iexact H5
    isplitl [H6]; · iexact H6
    isplitl [H7]; · iexact H7
    iexact Hbufs
  isplitl [Hs8 Hs9 Hs10 Hs11 Hsems]
  · isplitl [Hs8]; · iexact Hs8
    isplitl [Hs9]; · iexact Hs9
    isplitl [Hs10]; · iexact Hs10
    isplitl [Hs11]; · iexact Hs11
    iexact Hsems
  iexact HW

/-- The task in the launch theorem's shape: from what the call hands the tile and the subcore's scoped storage to
    what the tile hands back and the storage again. -/
theorem tile_body (hF : (K (F := F)).Facts) (hO : ∀ g, O g none = 0) :
    iprop(levAts (K (F := F)).L (K (F := F)).lev ∗ emp ∗ goRes d L fx ∗ scopedBufs (thr d L) ∗ scopedSems0 (thr d L) ∗ owes (thr d L) O W)
      ⊢ wp frame (wpE (defs₀ (F := F)) 𝒱₀ (thr d L) none) Set.univ
          (cc4_sc_group L xtW (Memref.isWhole_whole _) oW (Memref.isWhole_whole _) a4 (Memref.isWhole_whole _) a5 (Memref.isWhole_whole _)
            a6 (Memref.isWhole_whole _) a7 (Memref.isWhole_whole _) cc4_scratch4 cc4_scratch5 cc4_scratch6 cc4_scratch7)
          fun _ => iprop(tdRes d L fx ∗ scopedBufs (thr d L) ∗ scopedSems0 (thr d L)
            ∗ ∃ W', ⌜∀ p ∈ W', p ∈ W ∨ p.2 = none⌝ ∗ owes (thr d L) O W') := by
  rw [(K (F := F)).scopedBufs_V hF d (cV L) (jV L), SparseCore.Cfg.scopedSems0_V (Val := Elt F) d (cV L) (jV L)]
  exact (body_pre d L O W fx hO).trans ((tile_run d L O W fx (restR (F := F) d L)).trans (wp_mono frame _ _ fun _ => body_post d L O W fx))

end Tile

end Cert.Proof.TileB4

end
-- ==== Proof.TileVal5.lean ====
/-
  What the staging buffers of one vector subcore hold while it copies a piece of 3200 consecutive elements of row 5 of
  the transposed argument into the flat result, read index by index. No program and no ownership here: only the contents.

  A transfer lands the piece in row 0 of an 8 × 3200 staging array (`InRow`: position (0, t) of that row holds element
  (0, pos + t) of the transposed argument, `pos` the piece's first column). A loop of 200 trips copies that row, 16 lanes
  per trip, into the first 3200 elements of a flat staging array of 25600: trip `j` reads the 1 × 16 window at columns
  [16 j, 16 j + 16) of row 0 and writes it, flattened, at elements [16 j, 16 j + 16). After `j` trips the first 16 j
  elements of the flat array are the first 16 j elements of the row (`Lanes`); a trip extends the prefix by 16
  (`lanes_step`: an element below 16 j is outside the window written and keeps its value, an element of the window reads
  the lane written there, which is the row's element at the same column). A second transfer writes the first 3200
  elements of the flat array to the piece of the result at the same `pos`; so every element of that piece of the result
  holds the element of row 5 of the transposed argument at its own position (`out_written`): the composite of the three
  index maps t ↦ (0, pos + t) ↦ (0, t) ↦ t ↦ pos + t is the identity on positions of the row.
-/
import proofs.«206869_g37898791420194_cont_8to1_b_558_20_alg».proof.Proof.TileK5Defs
import proofs.«206869_g37898791420194_cont_8to1_b_558_20_alg».proof.Proof.Spec
import Idealize.ShloMosaic.Lib.WritesUnit
import Idealize.ShloMosaic.Lib.ValueLayout

noncomputable section

namespace Cert.Proof.TileVal5

open Cert.Proof.TileK5 Cert.KernelIdeal Cert.KernelIdeal.Gen
open Idealize.ShloMosaic Idealize.ShloMosaic.ValueIdx

variable {F : FTy → Type} [FloatOps F]
variable (d : Dev nD) (L : grid5.Coords)
variable (fx : Buf (Elt F) ((Memref.whole main_v0_scv : Memref sig .scVector .hbm S22x1600000 .f32).view.loc (thr d L)))

abbrev rowRect : Rect S8x3200 := Rect.unit (s := S8x3200) ![0, 0] S1x3200.size inb_S8x3200_S1x3200_0_0

/-- row 0 of the staging array is piece n of the argument row -/
def InRow (a : Memref sig .scVector .vmem S8x3200 .f32) (ga : Buf (Elt F) (a.view.loc (thr d L))) (n : ℕ) : Prop :=
  ∀ y : S1x3200.Idx, a.view.read (Elt F) ga (rowRect.emb y) = (inM L n).view.read (Elt F) fx y

theorem inRow_fetch (a : Memref sig .scVector .vmem S8x3200 .f32) (gold : Buf (Elt F) (a.view.loc (thr d L)))
    (w : S1x3200.Idx → Elt F .f32) (n : ℕ) (hw : ∀ y, w y = (inM L n).view.read (Elt F) fx y) :
    InRow d L fx a (a.view.writes (Elt F) gold [⟨rowRect, w⟩]) n :=
  fun y => (View.read_writes_cons_emb a.view gold rowRect w [] y).trans (hw y)

def Lanes (a : Memref sig .scVector .vmem S8x3200 .f32) (b : Memref sig .scVector .vmem S25600 .f32)
    (ga : Buf (Elt F) (a.view.loc (thr d L))) (gb : Buf (Elt F) (b.view.loc (thr d L))) (j : ℕ) : Prop :=
  ∀ (r : ℕ) (hr : r < 3200), r < 16 * j →
    b.view.read (Elt F) gb (ix1 (⟨r, by omega⟩ : Fin 25600)) = a.view.read (Elt F) ga (ix2 (0 : Fin 8) (⟨r, hr⟩ : Fin 3200))

theorem lanes_zero (a : Memref sig .scVector .vmem S8x3200 .f32) (b : Memref sig .scVector .vmem S25600 .f32)
    (ga : Buf (Elt F) (a.view.loc (thr d L))) (gb : Buf (Elt F) (b.view.loc (thr d L))) : Lanes d L a b ga gb 0 := by
  intro r hr h; omega

/-- The 1 × 16 window at column `c` of the staging array, read at lane `t`, is element `(0, c + t)`. -/
theorem idx_window {off : Fin 2 → ℕ} {c : ℕ} (h : off = ![0, c]) (p : ∀ a', off a' + S1x16.size a' ≤ S8x3200.size a')
    (t : Fin 16) (hr : c + t.val < 3200) :
    (Rect.unit (s := S8x3200) off S1x16.size p).toLoadRect.idx (ix2 (0 : Fin 1) t) = ix2 (0 : Fin 8) (⟨c + t.val, hr⟩ : Fin 3200) := by
  subst h
  funext a'; apply Fin.ext
  rw [LoadRect.idx_apply]
  match a' with
  | ⟨0, _⟩ => show 0 + 1 * 0 = 0; omega
  | ⟨1, _⟩ => show c + 1 * t.val = c + t.val; omega

/-- One trip of a lane-copy loop, the offsets given by their closed forms. -/
theorem lanes_step_core (a : Memref sig .scVector .vmem S8x3200 .f32) (b : Memref sig .scVector .vmem S25600 .f32)
    (ga : Buf (Elt F) (a.view.loc (thr d L))) (gb : Buf (Elt F) (b.view.loc (thr d L)))
    (t : ℕ) {off3 : Fin 2 → ℕ} {off4 : Fin 1 → ℕ} (h3 : off3 = ![0, 16 * t]) (h4 : off4 = ![16 * t])
    (p3 : ∀ a', off3 a' + S1x16.size a' ≤ S8x3200.size a') (p4 : ∀ a', off4 a' + S16.size a' ≤ S25600.size a')
    (h : Lanes d L a b ga gb t) :
    Lanes d L a b ga (b.view.writes (Elt F) gb [⟨Rect.unit (s := S25600) off4 S16.size p4,
      shapeCast S16 (a.view.readAt (Elt F) (Rect.unit (s := S8x3200) off3 S1x16.size p3).toLoadRect ga) shapeCasts_S1x16_S16⟩]) (t + 1) := by
  intro r hr hlt
  by_cases hlo : r < 16 * t
  · refine (View.read_writes_cons_unit_of_not_mem b.view gb p4 _ [] _ h4 (0 : Fin 1) (Or.inl ?_)).trans (h r hr hlo)
    show r < 16 * t
    exact hlo
  · have hx : r - 16 * t < 16 := by omega
    refine (View.read_writes_cons_unit_of_mem b.view gb p4 _ [] _ (ix1 (⟨r - 16 * t, hx⟩ : Fin 16)) h4 ?_).trans ?_
    · intro a'
      match a' with
      | ⟨0, _⟩ => show r = 16 * t + (r - 16 * t); omega
    · rw [shapeCast_1a_a_apply, View.readAt_apply, idx_window h3 p3 ⟨r - 16 * t, hx⟩ (by show 16 * t + (r - 16 * t) < 3200; omega)]
      congr 2
      apply Fin.ext
      show 16 * t + (r - 16 * t) = r
      omega

theorem lanes_step (a : Memref sig .scVector .vmem S8x3200 .f32) (b : Memref sig .scVector .vmem S25600 .f32)
    (ga : Buf (Elt F) (a.view.loc (thr d L))) (gb : Buf (Elt F) (b.view.loc (thr d L)))
    (j : Fin k5_t2_loop.trips) (p3 : ∀ a', (k5_off3 j) a' + S1x16.size a' ≤ S8x3200.size a')
    (p4 : ∀ a', (k5_off4 j) a' + S16.size a' ≤ S25600.size a') (h : Lanes d L a b ga gb j.val) :
    Lanes d L a b ga (b.view.writes (Elt F) gb [⟨Rect.unit (s := S25600) (k5_off4 j) S16.size p4,
      k5_pay1 (a.view.readAt (Elt F) (Rect.unit (s := S8x3200) (k5_off3 j) S1x16.size p3).toLoadRect ga)⟩]) (j.val + 1) :=
  lanes_step_core d L a b ga gb j.val (k5_off3_eq j) (k5_off4_eq j) p3 p4 h

theorem lanes_step' (a : Memref sig .scVector .vmem S8x3200 .f32) (b : Memref sig .scVector .vmem S25600 .f32)
    (ga : Buf (Elt F) (a.view.loc (thr d L))) (gb : Buf (Elt F) (b.view.loc (thr d L)))
    (j : Fin k5_t3_loop.trips) (p3 : ∀ a', (k5_off8 j) a' + S1x16.size a' ≤ S8x3200.size a')
    (p4 : ∀ a', (k5_off9 j) a' + S16.size a' ≤ S25600.size a') (h : Lanes d L a b ga gb j.val) :
    Lanes d L a b ga (b.view.writes (Elt F) gb [⟨Rect.unit (s := S25600) (k5_off9 j) S16.size p4,
      k5_pay2 (a.view.readAt (Elt F) (Rect.unit (s := S8x3200) (k5_off8 j) S1x16.size p3).toLoadRect ga)⟩]) (j.val + 1) :=
  lanes_step_core d L a b ga gb j.val (k5_off8_eq j) (k5_off9_eq j) p3 p4 h

/-- Position `y` of the write-out window of the flat staging array is its element `y 0`. -/
theorem stg_emb (y : S3200.Idx) (hy : (y 0).val < 25600) :
    (Rect.unit (s := S25600) ![0] S3200.size inb_S25600_S3200_0).emb y = ix1 (⟨(y 0).val, hy⟩ : Fin 25600) := by
  funext a'; apply Fin.ext
  match a' with
  | ⟨0, _⟩ => show 0 + 1 * (y 0).val = (y 0).val; omega

/-- Position `(0, t)` of row 0 of the staging array is its element `(0, t)`. -/
theorem row_emb (t : Fin 3200) : rowRect.emb (ix2 (0 : Fin 1) t) = ix2 (0 : Fin 8) t := by
  funext a'; apply Fin.ext
  match a' with
  | ⟨0, _⟩ => show 0 + 1 * 0 = 0; omega
  | ⟨1, _⟩ => show 0 + 1 * t.val = t.val; omega

/-- Position `(0, t)` of piece `n` of the argument row is element `(0, pos + t)` of the transposed argument;
    position `y` of piece `n` of the result is element `pos + y 0` of the result. -/
theorem in_emb (n : ℕ) (t : Fin 3200) (h : pos L n + t.val < 1600000) :
    (inM L n).view.emb (ix2 (0 : Fin 1) t) = ix2 (5 : Fin 22) (⟨pos L n + t.val, h⟩ : Fin 1600000) := by
  funext a'; apply Fin.ext
  match a' with
  | ⟨0, _⟩ => show 5 + 1 * 0 = 5; omega
  | ⟨1, _⟩ => show pos L n + 1 * t.val = pos L n + t.val; omega

theorem out_emb (n : ℕ) (y : S3200.Idx) (h : pos L n + (y 0).val < 1600000) :
    (outM L n).view.emb y = ix1 (⟨pos L n + (y 0).val, h⟩ : Fin 1600000) := by
  funext a'; apply Fin.ext
  match a' with
  | ⟨0, _⟩ => show pos L n + 1 * (y 0).val = pos L n + (y 0).val; omega

/-- Both lane-copy loops run 200 trips: 200 · 16 = 3200, the whole row. -/
theorem trips2 : k5_t2_loop.trips = 200 := by decide
theorem trips3 : k5_t3_loop.trips = 200 := by decide

/-- After all its trips a lane-copy loop has copied the whole row. -/
theorem lanes_all (a : Memref sig .scVector .vmem S8x3200 .f32) (b : Memref sig .scVector .vmem S25600 .f32)
    (ga : Buf (Elt F) (a.view.loc (thr d L))) (gb : Buf (Elt F) (b.view.loc (thr d L)))
    (h : Lanes d L a b ga gb k5_t2_loop.trips) : Lanes d L a b ga gb 200 := trips2 ▸ h
theorem lanes_all' (a : Memref sig .scVector .vmem S8x3200 .f32) (b : Memref sig .scVector .vmem S25600 .f32)
    (ga : Buf (Elt F) (a.view.loc (thr d L))) (gb : Buf (Elt F) (b.view.loc (thr d L)))
    (h : Lanes d L a b ga gb k5_t3_loop.trips) : Lanes d L a b ga gb 200 := trips3 ▸ h

/-- The write-out of a piece: the first 3200 elements of the flat staging array, which the 200 lane copies filled from
    row 0 of the staging array, which the fetch filled from piece `n` of row 5 of the transposed argument, land at
    piece `n` of the result, at the same positions of the row. -/
theorem out_written (a : Memref sig .scVector .vmem S8x3200 .f32) (b : Memref sig .scVector .vmem S25600 .f32) (n : ℕ)
    (ga : Buf (Elt F) (a.view.loc (thr d L))) (gb : Buf (Elt F) (b.view.loc (thr d L)))
    (f0 : Buf (Elt F) ((outM L n).view.loc (thr d L))) (w : S3200.Idx → Elt F .f32)
    (hw : ∀ y, w y = (stg b).view.read (Elt F) gb y) (hl : Lanes d L a b ga gb 200) (hr : InRow d L fx a ga n) (hv : valid L n) :
    ∀ i ∈ (outM L n).view.set, ((outM L n).view.writes (Elt F) f0 [⟨Rect.whole _, w⟩]) i = Cert.Spec.row 5 fx i := by
  intro i hi
  obtain ⟨y, -, rfl⟩ := Finset.mem_map.mp hi
  have hy : (y 0).val < 3200 := (y 0).isLt
  have hp : pos L n + (y 0).val < 1600000 := by unfold pos; omega
  have e1 : (outM L n).view.writes (Elt F) f0 [⟨Rect.whole _, w⟩] ((outM L n).view.emb y) = w y := by
    have h := View.read_writes_cons_emb (outM L n).view f0 (Rect.whole _) w [] y
    rw [Rect.emb_whole_apply] at h
    exact (cast_eq _ _).symm.trans ((View.read_apply _ _).symm.trans h)
  have e2 : (stg b).view.read (Elt F) gb y = b.view.read (Elt F) gb (ix1 (⟨(y 0).val, by omega⟩ : Fin 25600)) :=
    congrArg (b.view.read (Elt F) gb) (stg_emb y (by omega))
  have e3 : a.view.read (Elt F) ga (ix2 (0 : Fin 8) (⟨(y 0).val, hy⟩ : Fin 3200))
      = (inM L n).view.read (Elt F) fx (ix2 (0 : Fin 1) (⟨(y 0).val, hy⟩ : Fin 3200)) :=
    (congrArg (a.view.read (Elt F) ga) (row_emb ⟨(y 0).val, hy⟩).symm).trans (hr _)
  have e4 : (inM L n).view.read (Elt F) fx (ix2 (0 : Fin 1) (⟨(y 0).val, hy⟩ : Fin 3200))
      = fx (ix2 (5 : Fin 22) (⟨pos L n + (y 0).val, hp⟩ : Fin 1600000)) :=
    ((View.read_apply _ _).trans (cast_eq _ _)).trans (congrArg fx (in_emb L n ⟨(y 0).val, hy⟩ hp))
  have e5 : Cert.Spec.row 5 fx ((outM L n).view.emb y) = fx (ix2 (5 : Fin 22) (⟨pos L n + (y 0).val, hp⟩ : Fin 1600000)) :=
    (congrArg (Cert.Spec.row 5 fx) (out_emb L n y hp)).trans (Cert.Spec.row_apply 5 fx _)
  exact e1.trans ((hw y).trans (e2.trans ((hl _ hy (by omega)).trans (e3.trans (e4.trans e5.symm)))))

end Cert.Proof.TileVal5

end
-- ==== Proof.TileK5.lean ====
/-
  One vector subcore's task of copy kernel 5 (counting from 0), run symbolically: the two fetch slots and two write-out slots
  between trips of the main loop (what each transfer in flight will hand back, and what the staging buffers hold), the
  invariant of the main loop and of the two lane-copy loops, and the task's run — from the tile's pieces of row 5 of
  the transposed argument and of the result to the same pieces with the result holding the row's elements.
-/
import proofs.«206869_g37898791420194_cont_8to1_b_558_20_alg».proof.Proof.TileK5Defs
import proofs.«206869_g37898791420194_cont_8to1_b_558_20_alg».proof.Proof.TileVal5
noncomputable section

namespace Cert.Proof.TileK5

open Cert.KernelIdeal Cert.KernelIdeal.Gen Cert.Proof.TileVal5
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 22) (Elt F) ℕ UU ℕ
local notation "xtW" => (Memref.whole Cert.KernelIdeal.main_v0_scv : Memref Cert.KernelIdeal.sig Kind.scVector Space.hbm Cert.KernelIdeal.S22x1600000 EltTy.f32)
local notation "oW" => (Memref.whole Cert.KernelIdeal.main_v6_scv : Memref Cert.KernelIdeal.sig Kind.scVector Space.hbm Cert.KernelIdeal.S1600000 EltTy.f32)
local notation "a4" => (Memref.whole Cert.KernelIdeal.cc5_scratch0 : Memref Cert.KernelIdeal.sig Kind.scVector Space.vmem Cert.KernelIdeal.S8x3200 EltTy.f32)
local notation "a5" => (Memref.whole Cert.KernelIdeal.cc5_scratch1 : Memref Cert.KernelIdeal.sig Kind.scVector Space.vmem Cert.KernelIdeal.S8x3200 EltTy.f32)
local notation "a6" => (Memref.whole Cert.KernelIdeal.cc5_scratch2 : Memref Cert.KernelIdeal.sig Kind.scVector Space.vmem Cert.KernelIdeal.S25600 EltTy.f32)
local notation "a7" => (Memref.whole Cert.KernelIdeal.cc5_scratch3 : Memref Cert.KernelIdeal.sig Kind.scVector Space.vmem Cert.KernelIdeal.S25600 EltTy.f32)

variable [FloatOps F]

section Tile

variable (d : Dev nD) (L : grid5.Coords)
variable (O : CellTallies nD τ sig (HIx 22)) (W : Waits sig (HIx 22))
variable (fx : Buf (Elt F) ((xtW).view.loc (thr d L)))

/-- Piece `n` of the result at its final contents. -/
abbrev oqPiece (n : ℕ) : sProp 𝕄 := (outM L n).view.loc (thr d L) ↦[(outM L n).view.set]{fullShare} (Cert.Spec.row 5 fx)
theorem oQ_pos {n : ℕ} (v : valid L n) : oQ d L fx n = oqPiece d L fx n := if_pos v
theorem oQ_neg {n : ℕ} (v : ¬ valid L n) : oQ d L fx n = iprop(emp) := if_neg v

/-- A fetch slot, remembering that the staging row it will hand back holds the piece. -/
def inSlotV (a : Memref sig .scVector .vmem S8x3200 .f32) (sm : DmaSem sig) (n : ℕ) : sProp 𝕄 :=
  if valid L n then
    iprop(∃ g, ⌜InRow d L fx a g n⌝ ∗ Transfers.Flight countersEmb (thr d L) (SemLoc.dma sm) (default : HIx 22) NN
      iprop((a.view.loc (thr d L) ↦{fullShare} g) ∗ xtPiece d L fx n))
  else iprop((∃ g, a.view.loc (thr d L) ↦{fullShare} g) ∗ semVal (thr d L, SemLoc.dma sm) 0)

/-- A write-out slot: the piece in flight will come back holding the row's elements. -/
def outSlotV (a : Memref sig .scVector .vmem S25600 .f32) (sm : DmaSem sig) (m : ℕ) : sProp 𝕄 :=
  if 2 ≤ m ∧ valid L (m - 2) then
    iprop(∃ g, Transfers.Flight countersEmb (thr d L) (SemLoc.dma sm) (default : HIx 22) NN
        iprop(oqPiece d L fx (m - 2) ∗ ((stg a).view.loc (thr d L) ↦[(stg a).view.set]{fullShare} g))
      ∗ (a.view.loc (thr d L) ↦[Finset.univ \ (stg a).view.set]{fullShare} g))
  else iprop((∃ g, a.view.loc (thr d L) ↦{fullShare} g) ∗ semVal (thr d L, SemLoc.dma sm) 0)

theorem inSlotV_pos {a : Memref sig .scVector .vmem S8x3200 .f32} {sm : DmaSem sig} {n : ℕ} (v : valid L n) :
    inSlotV d L fx a sm n = iprop(∃ g, ⌜InRow d L fx a g n⌝ ∗ Transfers.Flight countersEmb (thr d L) (SemLoc.dma sm) (default : HIx 22) NN
      iprop((a.view.loc (thr d L) ↦{fullShare} g) ∗ xtPiece d L fx n)) := by unfold inSlotV; rw [if_pos v]
theorem inSlotV_neg {a : Memref sig .scVector .vmem S8x3200 .f32} {sm : DmaSem sig} {n : ℕ} (v : ¬ valid L n) :
    inSlotV d L fx a sm n = iprop((∃ g, a.view.loc (thr d L) ↦{fullShare} g) ∗ semVal (thr d L, SemLoc.dma sm) 0) := by
  unfold inSlotV; rw [if_neg v]
theorem outSlotV_pos {a : Memref sig .scVector .vmem S25600 .f32} {sm : DmaSem sig} {m : ℕ} (h : 2 ≤ m ∧ valid L (m - 2)) :
    outSlotV d L fx a sm m = iprop(∃ g, Transfers.Flight countersEmb (thr d L) (SemLoc.dma sm) (default : HIx 22) NN
        iprop(oqPiece d L fx (m - 2) ∗ ((stg a).view.loc (thr d L) ↦[(stg a).view.set]{fullShare} g))
      ∗ (a.view.loc (thr d L) ↦[Finset.univ \ (stg a).view.set]{fullShare} g)) := by unfold outSlotV; rw [if_pos h]
theorem outSlotV_neg {a : Memref sig .scVector .vmem S25600 .f32} {sm : DmaSem sig} {m : ℕ} (h : ¬ (2 ≤ m ∧ valid L (m - 2))) :
    outSlotV d L fx a sm m = iprop((∃ g, a.view.loc (thr d L) ↦{fullShare} g) ∗ semVal (thr d L, SemLoc.dma sm) 0) := by
  unfold outSlotV; rw [if_neg h]

/-- A fetch just issued: the staging row will hold what the transfer reads, which is the piece. -/
theorem fl_inV {off : Fin 2 → ℕ} {n : ℕ} (h : off = ![5, pos L n]) (p : ∀ a, off a + S1x3200.size a ≤ S22x1600000.size a) (v : valid L n)
    (a : Memref sig .scVector .vmem S8x3200 .f32) (sm : DmaSem sig) :
    (iprop(∃ (gold : Buf (Elt F) (a.view.loc (thr d L))) (w : S1x3200.Idx → Elt F .f32),
        ⌜∀ y, w y = ((xtW).slice (Rect.unit (s := S22x1600000) off S1x3200.size p) (fun _ => rfl)).view.read (Elt F) fx y⌝
        ∗ Transfers.Flight countersEmb (thr d L) (SemLoc.dma sm) (default : HIx 22) NN
          iprop((a.view.loc (thr d L) ↦{fullShare} a.view.writes (Elt F) gold [⟨rowRect, w⟩])
            ∗ (((xtW).slice (Rect.unit (s := S22x1600000) off S1x3200.size p) (fun _ => rfl)).view.loc (thr d L)
                ↦[((xtW).slice (Rect.unit (s := S22x1600000) off S1x3200.size p) (fun _ => rfl)).view.set]{fullShare} fx))) : sProp 𝕄)
      ⊢ inSlotV d L fx a sm n := by
  subst h
  rw [inSlotV_pos d L fx v]
  iintro ⟨%gold, %w, %hw, H⟩
  iexists _
  isplitr
  · ipureintro; exact inRow_fetch d L fx a gold w n hw
  · iexact H

set_option maxHeartbeats 4000000 in
/-- A write-out just issued from a flat staging buffer whose first 3200 elements are the staging row, itself piece
    `n` of the argument row: the piece of the result will hold the row's elements. -/
theorem fl_outV {off : Fin 1 → ℕ} {n : ℕ} (h : off = ![pos L n]) (p : ∀ a, off a + S3200.size a ≤ S1600000.size a) (v : valid L n)
    (ar : Memref sig .scVector .vmem S8x3200 .f32) (a : Memref sig .scVector .vmem S25600 .f32) (sm : DmaSem sig)
    (f0 : Buf (Elt F) ((oW).view.loc (thr d L))) (ga : Buf (Elt F) (ar.view.loc (thr d L))) (gb : Buf (Elt F) (a.view.loc (thr d L)))
    (hl : Lanes d L ar a ga gb 200) (hr : InRow d L fx ar ga n) :
    (iprop(∃ (w : S3200.Idx → Elt F .f32),
        ⌜∀ y, w y = (stg a).view.read (Elt F) gb y⌝
        ∗ Transfers.Flight countersEmb (thr d L) (SemLoc.dma sm) (default : HIx 22) NN
          iprop((((oW).slice (Rect.unit (s := S1600000) off S3200.size p) (fun _ => rfl)).view.loc (thr d L)
                ↦[((oW).slice (Rect.unit (s := S1600000) off S3200.size p) (fun _ => rfl)).view.set]{fullShare}
                  (((oW).slice (Rect.unit (s := S1600000) off S3200.size p) (fun _ => rfl)).view.writes (Elt F) f0 [⟨Rect.whole _, w⟩]))
            ∗ ((stg a).view.loc (thr d L) ↦[(stg a).view.set]{fullShare} gb))
        ∗ (a.view.loc (thr d L) ↦[Finset.univ \ (stg a).view.set]{fullShare} gb)) : sProp 𝕄)
      ⊢ outSlotV d L fx a sm (n + 2) := by
  subst h
  rw [outSlotV_pos d L fx (m := n + 2) ⟨by omega, by simpa using v⟩]
  iintro ⟨%w, %hw, H, R⟩
  have hD : (iprop(((outM L n).view.loc (thr d L) ↦[(outM L n).view.set]{fullShare} ((outM L n).view.writes (Elt F) f0 [⟨Rect.whole _, w⟩]))
          ∗ ((stg a).view.loc (thr d L) ↦[(stg a).view.set]{fullShare} gb)) : sProp 𝕄)
      ⊢ iprop(oqPiece d L fx (n + 2 - 2) ∗ ((stg a).view.loc (thr d L) ↦[(stg a).view.set]{fullShare} gb)) := by
    rw [Nat.add_sub_cancel]
    have e : (((outM L n).view.loc (thr d L) ↦[(outM L n).view.set]{fullShare} ((outM L n).view.writes (Elt F) f0 [⟨Rect.whole _, w⟩])) : sProp 𝕄)
        = oqPiece d L fx n := pointsTo_congr (out_written d L fx ar a n ga gb f0 w hw hl hr v)
    iintro ⟨H1, H2⟩
    isplitl [H1]
    · iapply (Entails.of_eq e); iexact H1
    · iexact H2
  iexists gb
  isplitl [H]
  · iapply (Transfers.Flight_mono countersEmb (thr d L) hD); iexact H
  · iexact R

/-- The result pieces outside the slots before trip `t`: those already written hold the row, the others some contents. -/
def oMix (t n : ℕ) : sProp 𝕄 := if n + 2 < 2 * t then oQ d L fx n else oP (F := F) d L n
theorem oMix_lt {t n : ℕ} (h : n + 2 < 2 * t) : oMix d L fx t n = oQ d L fx n := if_pos h
theorem oMix_ge {t n : ℕ} (h : ¬ n + 2 < 2 * t) : oMix d L fx t n = oP (F := F) d L n := if_neg h
theorem oMix_core (k : ℕ) : bigSep (oCore k) (oMix d L fx k) = bigSep (oCore k) (oMix d L fx (k + 1)) :=
  bigSep_congr fun n hn => by
    have hn' : n + 2 ≠ 2 * k ∧ n + 2 ≠ 2 * k + 1 ∧ n ≠ 2 * k ∧ n ≠ 2 * k + 1 := by
      simp only [oCore, Finset.mem_filter, Finset.mem_range] at hn; exact hn.2
    by_cases h : n + 2 < 2 * k
    · rw [oMix_lt d L fx h, oMix_lt d L fx (by omega)]
    · rw [oMix_ge d L fx h, oMix_ge d L fx (by omega)]
theorem oMix_zero : bigSep (oSet 0) (oMix d L fx 0) = bigSep (Finset.range 18) (oP (F := F) d L) := by
  rw [oSet_zero]; exact bigSep_congr fun n _ => oMix_ge d L fx (by omega)
theorem oMix_end : bigSep (oSet 8) (oMix d L fx 8) = bigSep (oSet 8) (oQ d L fx) :=
  bigSep_congr fun n hn => by
    have hn' : n < 18 ∧ n + 2 ≠ 16 ∧ n + 2 ≠ 17 := by simpa only [oSet, Finset.mem_filter, Finset.mem_range] using hn
    by_cases h : n + 2 < 2 * 8
    · exact oMix_lt d L fx h
    · rw [oMix_ge d L fx h, oP_neg (F := F) d L (by unfold valid; omega), oQ_neg d L fx (by unfold valid; omega)]

/-- The lane-copy loops: before trip `j` the first 16·j elements of the flat staging buffer are the staging row's. -/
def laneV0 (g4 : Buf (Elt F) ((a4).view.loc (thr d L))) (j : ℕ) (_ : PUnit) : sProp 𝕄 :=
  iprop(((a4).view.loc (thr d L) ↦{fullShare} g4) ∗ (∃ g, ((a6).view.loc (thr d L) ↦{fullShare} g) ∗ ⌜Lanes d L a4 a6 g4 g j⌝))
def laneV1 (g5 : Buf (Elt F) ((a5).view.loc (thr d L))) (j : ℕ) (_ : PUnit) : sProp 𝕄 :=
  iprop(((a5).view.loc (thr d L) ↦{fullShare} g5) ∗ (∃ g, ((a7).view.loc (thr d L) ↦{fullShare} g) ∗ ⌜Lanes d L a5 a7 g5 g j⌝))

def invV (t : ℕ) (_ : PUnit) : sProp 𝕄 :=
  iprop(Transfers.MayWaits (thr d L) (none : HIx 22) O
    ∗ (∃ W', ⌜∀ p ∈ W', p ∈ W ∨ p.2 = none⌝ ∗ owes (thr d L) O W')
    ∗ bigSep (xSet t) (xP d L fx) ∗ bigSep (oSet t) (oMix d L fx t)
    ∗ inSlotV d L fx a4 cc5_scratch4.sem (2 * t) ∗ outSlotV d L fx a6 cc5_scratch6.sem (2 * t)
    ∗ inSlotV d L fx a5 cc5_scratch5.sem (2 * t + 1) ∗ outSlotV d L fx a7 cc5_scratch7.sem (2 * t + 1))

/-- After the last trip nothing of the argument row is in a slot: the tile holds all its pieces. -/
theorem xRange_end : bigSep (xSet 8) (xP d L fx) ⊢ bigSep (Finset.range 18) (xP d L fx) := by
  rw [two_out (s := Finset.range 18) (a := 16) (b := 17) (by decide) (by decide) (by decide),
    show ((Finset.range 18).erase 16).erase 17 = xSet 8 by decide]
  iintro H
  isplitr; · iapply (Entails.of_eq (xP_neg d L fx (n := 16) (by unfold valid; omega)).symm); iempintro
  isplitr; · iapply (Entails.of_eq (xP_neg d L fx (n := 17) (by unfold valid; omega)).symm); iempintro
  iexact H
omit [FloatOps F] in
theorem oRange_end (Φ : ℕ → sProp 𝕄) : bigSep (Finset.range 18) Φ = iprop(Φ 14 ∗ Φ 15 ∗ bigSep (oSet 8) Φ) := by
  rw [two_out (s := Finset.range 18) (a := 14) (b := 15) (by decide) (by decide) (by decide),
    show ((Finset.range 18).erase 14).erase 15 = oSet 8 by decide]

/-- What the run starts from and ends with, beside an untouched rest `R`. -/
def runPre (R : sProp 𝕄) : sProp 𝕄 :=
    iprop(Transfers.MayWaits (thr d L) (none : HIx 22) O ∗ owes (thr d L) O W
        ∗ bigSep (Finset.range 18) (xP d L fx) ∗ bigSep (Finset.range 18) (oP (F := F) d L)
        ∗ (∃ g, (a4).view.loc (thr d L) ↦{fullShare} g) ∗ (∃ g, (a5).view.loc (thr d L) ↦{fullShare} g)
        ∗ (∃ g, (a6).view.loc (thr d L) ↦{fullShare} g) ∗ (∃ g, (a7).view.loc (thr d L) ↦{fullShare} g)
        ∗ semVal (thr d L, SemLoc.dma cc5_scratch4.sem) 0 ∗ semVal (thr d L, SemLoc.dma cc5_scratch5.sem) 0
        ∗ semVal (thr d L, SemLoc.dma cc5_scratch6.sem) 0 ∗ semVal (thr d L, SemLoc.dma cc5_scratch7.sem) 0 ∗ R)
def runPost (R : sProp 𝕄) : sProp 𝕄 :=
    iprop(bigSep (Finset.range 18) (xP d L fx) ∗ bigSep (Finset.range 18) (oQ d L fx)
            ∗ (∃ g, (a4).view.loc (thr d L) ↦{fullShare} g) ∗ (∃ g, (a5).view.loc (thr d L) ↦{fullShare} g)
            ∗ (∃ g, (a6).view.loc (thr d L) ↦{fullShare} g) ∗ (∃ g, (a7).view.loc (thr d L) ↦{fullShare} g)
            ∗ semVal (thr d L, SemLoc.dma cc5_scratch4.sem) 0 ∗ semVal (thr d L, SemLoc.dma cc5_scratch5.sem) 0
            ∗ semVal (thr d L, SemLoc.dma cc5_scratch6.sem) 0 ∗ semVal (thr d L, SemLoc.dma cc5_scratch7.sem) 0
            ∗ (∃ W', ⌜∀ p ∈ W', p ∈ W ∨ p.2 = none⌝ ∗ owes (thr d L) O W') ∗ R)

set_option maxHeartbeats 16000000 in
/-- The task's run: from its pieces of the argument row and of the result, the four staging buffers and the four
    semaphores at zero, to the same with every piece of the result holding the row's elements. -/
theorem tile_run (R : sProp 𝕄) :
    runPre d L O W fx R
      ⊢ wp frame (wpE (defs₀ (F := F)) 𝒱₀ (thr d L) none) Set.univ
          (cc5_sc_group L xtW (Memref.isWhole_whole _) oW (Memref.isWhole_whole _) a4 (Memref.isWhole_whole _) a5 (Memref.isWhole_whole _)
            a6 (Memref.isWhole_whole _) a7 (Memref.isWhole_whole _) cc5_scratch4 cc5_scratch5 cc5_scratch6 cc5_scratch7)
          fun _ => runPost d L O W fx R := by
  unfold runPre runPost
  have v0 : valid L 0 := Or.inl (by omega)
  have v1 : valid L 1 := Or.inl (by omega)
  have k5_h7 : k5_cond7 L = 1#1 := cond7_iff L
  iintro ⟨#Hmw, HO, HX, HOut, ⟨%g4, H4⟩, ⟨%g5, H5⟩, ⟨%g6, H6⟩, ⟨%g7, H7⟩, Hs8, Hs9, Hs10, Hs11, HR⟩
  ihave HX := (Entails.of_eq (xRange_split d L fx v0 v1)) $$ HX
  icases HX with ⟨X0, X1, HX⟩
  ihave X0 := (Entails.of_eq (in_congr d L (off_in0 L v0).symm (in_inb L _) (k5_off1_inb L 0) fx)) $$ X0
  ihave X1 := (Entails.of_eq (in_congr d L (off_in1 L v1).symm (in_inb L _) (k5_off1_inb L 1) fx)) $$ X1
  sl_unfold [cc5_sc_group]
  sl_exec
  ihave S8 := (fl_inV d L fx (off_in0 L v0) (k5_off1_inb L 0) v0 a4 cc5_scratch4.sem) $$ [Hs8]
  · iexists _, _
    isplitr
    rotate_left
    · iexact Hs8
    ipureintro; intro y; rfl
  ihave S9 := (fl_inV d L fx (off_in1 L v1) (k5_off1_inb L 1) v1 a5 cc5_scratch5.sem) $$ [Hs9]
  · iexists _, _
    isplitr
    rotate_left
    · iexact Hs9
    ipureintro; intro y; rfl
  sl_for (invV d L O W fx) $$ [HO HX HOut S8 S9 H6 H7 Hs10 Hs11]
  case region =>
    intro (k : Fin k5_t1_loop.trips) acc
    have hk : k.val < 8 := Nat.lt_of_lt_of_eq k.isLt trips1
    unfold invV
    iintro ⟨#Hmw, ⟨%W', %hW', HO⟩, HX, HOut, S8, S10, S9, S11⟩
    by_cases hk1 : 1 ≤ k.val
    · by_cases v3 : valid L (2 * k.val + 3)
      · -- the generic trip: both drains, both pieces worked, both next fetches issued
        have hk6 : k.val ≤ 6 := by unfold valid at v3; omega
        have k5_h1 : k5_cond1 k = 1#1 := (cond1_iff k).mpr (by omega)
        have k5_h2 : k5_cond2 L k = 1#1 := cond2_iff L k
        have k5_h3 : k5_cond3 L k = 1#1 := (cond3_iff L k).mpr (by omega)
        have k5_h4 : k5_cond4 k = 1#1 := (cond4_iff k).mpr (by omega)
        have k5_h5 : k5_cond5 L k = 1#1 := (cond5_iff L k).mpr (by first | (unfold valid big at *; omega) | (unfold big at *; omega) | omega)
        have k5_h6 : k5_cond6 L k = 1#1 := (cond6_iff L k).mpr (by first | (unfold valid big at *; omega) | (unfold big at *; omega) | omega)
        have v0 : valid L (2 * k.val) := by unfold valid big at *; omega
        have v1 : valid L (2 * k.val + 1) := by unfold valid big at *; omega
        have v2 : valid L (2 * k.val + 2) := by unfold valid big at *; omega
        have v3' : valid L (2 * k.val + 3) := by unfold valid big at *; omega
        have hm0 : 2 ≤ 2 * k.val ∧ valid L (2 * k.val - 2) := ⟨by omega, by unfold valid big at *; omega⟩
        have hm1 : 2 ≤ 2 * k.val + 1 ∧ valid L (2 * k.val + 1 - 2) := ⟨by omega, by unfold valid big at *; omega⟩
        ihave S8 := (Entails.of_eq (inSlotV_pos d L fx v0)) $$ S8
        icases S8 with ⟨%g4, %hin4, F8⟩
        ihave S9 := (Entails.of_eq (inSlotV_pos d L fx v1)) $$ S9
        icases S9 with ⟨%g5, %hin5, F9⟩
        ihave S10 := (Entails.of_eq (outSlotV_pos d L fx hm0)) $$ S10
        icases S10 with ⟨%g6, F10, R6⟩
        ihave S11 := (Entails.of_eq (outSlotV_pos d L fx hm1)) $$ S11
        icases S11 with ⟨%g7, F11, R7⟩
        ihave HX := (Entails.of_eq (xSet_out (xP d L fx) k.val hk)) $$ HX
        icases HX with ⟨X2, X3, HX⟩
        ihave X2 := (Entails.of_eq (xP_pos d L fx v2)) $$ X2
        ihave X2 := (Entails.of_eq (in_congr d L (off_6 L k v2).symm (in_inb L _) (k5_off6_inb L k k5_h3) fx)) $$ X2
        ihave X3 := (Entails.of_eq (xP_pos d L fx v3')) $$ X3
        ihave X3 := (Entails.of_eq (in_congr d L (off_11 L k v3').symm (in_inb L _) (k5_off11_inb L k k5_h6) fx)) $$ X3
        ihave HOut := (Entails.of_eq (oSet_out (oMix d L fx k.val) k.val hk)) $$ HOut
        icases HOut with ⟨Y0, Y1, HOut⟩
        ihave Y0 := (Entails.of_eq ((oMix_ge d L fx (t := k.val) (n := 2 * k.val) (by omega)).trans (oP_pos (F := F) d L v0))) $$ Y0
        icases Y0 with ⟨%f0, Y0⟩
        ihave Y0 := (Entails.of_eq (out_congr d L (off_5 L k v0).symm (out_inb L _) (k5_off5_inb L k k5_h2) f0)) $$ Y0
        ihave Y1 := (Entails.of_eq ((oMix_ge d L fx (t := k.val) (n := 2 * k.val + 1) (by omega)).trans (oP_pos (F := F) d L v1))) $$ Y1
        icases Y1 with ⟨%f1, Y1⟩
        ihave Y1 := (Entails.of_eq (out_congr d L (off_10 L k v1).symm (out_inb L _) (k5_off10_inb L k k5_h5) f1)) $$ Y1
        sl_exec
        sl_for (laneV0 d L g4) $$ [F8_dst R6]
        case region =>
          intro (j : Fin k5_t2_loop.trips) _
          unfold laneV0
          iintro ⟨HA, %g, HB, %hl⟩
          sl_exec
          sl_step
          isplitl [HA]; · iexact HA
          iexists _; isplitl [HB]; · iexact HB
          ipureintro; exact lanes_step d L a4 a6 g4 g j _ _ hl
        · unfold laneV0
          isplitl [F8_dst]; · iexact F8_dst
          iexists _; isplitl [R6]; · iexact R6
          ipureintro; exact lanes_zero d L a4 a6 g4 _
        iintro %_ HI
        unfold laneV0
        icases HI with ⟨H4, %g6', H6, %hl6⟩
        have hl6 : Lanes d L a4 a6 g4 g6' 200 := Eq.mp (congrArg (Lanes d L a4 a6 g4 g6') trips2) hl6
        sl_exec
        sl_for (laneV1 d L g5) $$ [F9_dst R7]
        case region =>
          intro (j : Fin k5_t3_loop.trips) _
          unfold laneV1
          iintro ⟨HA, %g, HB, %hl⟩
          sl_exec
          sl_step
          isplitl [HA]; · iexact HA
          iexists _; isplitl [HB]; · iexact HB
          ipureintro; exact lanes_step' d L a5 a7 g5 g j _ _ hl
        · unfold laneV1
          isplitl [F9_dst]; · iexact F9_dst
          iexists _; isplitl [R7]; · iexact R7
          ipureintro; exact lanes_zero d L a5 a7 g5 _
        iintro %_ HI
        unfold laneV1
        icases HI with ⟨H5, %g7', H7, %hl7⟩
        have hl7 : Lanes d L a5 a7 g5 g7' 200 := Eq.mp (congrArg (Lanes d L a5 a7 g5 g7') trips3) hl7
        sl_exec
        sl_step
        isplitr; · iexact Hmw
        isplitl [HO]
        · iexists _; isplitr
          rotate_left
          · iexact HO
          ipureintro; intro p hp
          rcases Finset.mem_insert.mp hp with rfl | hp
          · exact .inr rfl
          rcases Finset.mem_insert.mp hp with rfl | hp
          · exact .inr rfl
          rcases Finset.mem_insert.mp hp with rfl | hp
          · exact .inr rfl
          rcases Finset.mem_insert.mp hp with rfl | hp
          · exact .inr rfl
          exact hW' p hp
        isplitl [HX F8_src F9_src]
        · iapply (Entails.of_eq (xSet_in (xP d L fx) k.val hk).symm)
          isplitl [F8_src]; · iapply (Entails.of_eq (xP_pos d L fx v0).symm); iexact F8_src
          isplitl [F9_src]; · iapply (Entails.of_eq (xP_pos d L fx v1).symm); iexact F9_src
          iexact HX
        isplitl [HOut F10_dst F11_dst]
        · iapply (Entails.of_eq (oSet_in (oMix d L fx (k.val + 1)) k.val hk (by omega)).symm)
          isplitl [F10_dst]; · iapply (Entails.of_eq ((oMix_lt d L fx (t := k.val + 1) (n := 2 * k.val - 2) (by omega)).trans (oQ_pos d L fx hm0.2)).symm); iexact F10_dst
          isplitl [F11_dst]
          · iapply (Entails.of_eq ((oMix_lt d L fx (t := k.val + 1) (n := 2 * k.val - 1) (by omega)).trans (oQ_pos d L fx (n := 2 * k.val - 1) (by have := hm1.2; rwa [show 2 * k.val + 1 - 2 = 2 * k.val - 1 by omega] at this))).symm)
            iapply (Entails.of_eq (congrArg (oqPiece d L fx) (show 2 * k.val + 1 - 2 = 2 * k.val - 1 by omega))); iexact F11_dst
          iapply (Entails.of_eq (oMix_core d L fx k.val)); iexact HOut
        isplitl [F8]
        · iapply (Entails.of_eq (congrArg (inSlotV d L fx a4 cc5_scratch4.sem) (show 2 * k.val + 2 = 2 * (k.val + 1) by ring)))
          iapply (fl_inV d L fx (off_6 L k v2) (k5_off6_inb L k k5_h3) v2 a4 cc5_scratch4.sem); iexists _, _
          isplitr
          rotate_left
          · iexact F8
          ipureintro; intro y; rfl
        isplitl [F10 H6]
        · iapply (Entails.of_eq (congrArg (outSlotV d L fx a6 cc5_scratch6.sem) (show 2 * k.val + 2 = 2 * (k.val + 1) by ring)))
          iapply (fl_outV d L fx (off_5 L k v0) (k5_off5_inb L k k5_h2) v0 a4 a6 cc5_scratch6.sem f0 g4 g6' hl6 hin4); iexists _
          isplitr
          rotate_left
          · isplitl [F10]; · iexact F10
            iexact H6
          ipureintro; intro y; rfl
        isplitl [F9]
        · iapply (Entails.of_eq (congrArg (inSlotV d L fx a5 cc5_scratch5.sem) (show 2 * k.val + 3 = 2 * (k.val + 1) + 1 by ring)))
          iapply (fl_inV d L fx (off_11 L k v3') (k5_off11_inb L k k5_h6) v3' a5 cc5_scratch5.sem); iexists _, _
          isplitr
          rotate_left
          · iexact F9
          ipureintro; intro y; rfl
        · iapply (Entails.of_eq (congrArg (outSlotV d L fx a7 cc5_scratch7.sem) (show 2 * k.val + 1 + 2 = 2 * (k.val + 1) + 1 by ring)))
          iapply (fl_outV d L fx (off_10 L k v1) (k5_off10_inb L k k5_h5) v1 a5 a7 cc5_scratch7.sem f1 g5 g7' hl7 hin5); iexists _
          isplitr
          rotate_left
          · isplitl [F11]; · iexact F11
            iexact H7
          ipureintro; intro y; rfl
      · by_cases h6 : k.val = 6
        · have hb : ¬ big L := fun hb => v3 (Or.inr ⟨by omega, hb⟩)
          -- trip 6 of a tile with fifteen pieces: no sixteenth piece to fetch
          have k5_h1 : k5_cond1 k = 1#1 := (cond1_iff k).mpr (by omega)
          have k5_h2 : k5_cond2 L k = 1#1 := cond2_iff L k
          have k5_h3 : k5_cond3 L k = 1#1 := (cond3_iff L k).mpr (by omega)
          have k5_h4 : k5_cond4 k = 1#1 := (cond4_iff k).mpr (by omega)
          have k5_h5 : k5_cond5 L k = 1#1 := (cond5_iff L k).mpr (by first | (unfold valid big at *; omega) | (unfold big at *; omega) | omega)
          have k5_h6 : ¬ k5_cond6 L k = 1#1 := fun h => absurd ((cond6_iff L k).mp h) (by first | (unfold valid big at *; omega) | (unfold big at *; omega) | omega)
          have v0 : valid L (2 * k.val) := by unfold valid big at *; omega
          have v1 : valid L (2 * k.val + 1) := by unfold valid big at *; omega
          have v2 : valid L (2 * k.val + 2) := by unfold valid big at *; omega
          have v3' : ¬ valid L (2 * k.val + 3) := by unfold valid big at *; omega
          have hm0 : 2 ≤ 2 * k.val ∧ valid L (2 * k.val - 2) := ⟨by omega, by unfold valid big at *; omega⟩
          have hm1 : 2 ≤ 2 * k.val + 1 ∧ valid L (2 * k.val + 1 - 2) := ⟨by omega, by unfold valid big at *; omega⟩
          ihave S8 := (Entails.of_eq (inSlotV_pos d L fx v0)) $$ S8
          icases S8 with ⟨%g4, %hin4, F8⟩
          ihave S9 := (Entails.of_eq (inSlotV_pos d L fx v1)) $$ S9
          icases S9 with ⟨%g5, %hin5, F9⟩
          ihave S10 := (Entails.of_eq (outSlotV_pos d L fx hm0)) $$ S10
          icases S10 with ⟨%g6, F10, R6⟩
          ihave S11 := (Entails.of_eq (outSlotV_pos d L fx hm1)) $$ S11
          icases S11 with ⟨%g7, F11, R7⟩
          ihave HX := (Entails.of_eq (xSet_out (xP d L fx) k.val hk)) $$ HX
          icases HX with ⟨X2, -, HX⟩
          ihave X2 := (Entails.of_eq (xP_pos d L fx v2)) $$ X2
          ihave X2 := (Entails.of_eq (in_congr d L (off_6 L k v2).symm (in_inb L _) (k5_off6_inb L k k5_h3) fx)) $$ X2
          ihave HOut := (Entails.of_eq (oSet_out (oMix d L fx k.val) k.val hk)) $$ HOut
          icases HOut with ⟨Y0, Y1, HOut⟩
          ihave Y0 := (Entails.of_eq ((oMix_ge d L fx (t := k.val) (n := 2 * k.val) (by omega)).trans (oP_pos (F := F) d L v0))) $$ Y0
          icases Y0 with ⟨%f0, Y0⟩
          ihave Y0 := (Entails.of_eq (out_congr d L (off_5 L k v0).symm (out_inb L _) (k5_off5_inb L k k5_h2) f0)) $$ Y0
          ihave Y1 := (Entails.of_eq ((oMix_ge d L fx (t := k.val) (n := 2 * k.val + 1) (by omega)).trans (oP_pos (F := F) d L v1))) $$ Y1
          icases Y1 with ⟨%f1, Y1⟩
          ihave Y1 := (Entails.of_eq (out_congr d L (off_10 L k v1).symm (out_inb L _) (k5_off10_inb L k k5_h5) f1)) $$ Y1
          sl_exec
          sl_for (laneV0 d L g4) $$ [F8_dst R6]
          case region =>
            intro (j : Fin k5_t2_loop.trips) _
            unfold laneV0
            iintro ⟨HA, %g, HB, %hl⟩
            sl_exec
            sl_step
            isplitl [HA]; · iexact HA
            iexists _; isplitl [HB]; · iexact HB
            ipureintro; exact lanes_step d L a4 a6 g4 g j _ _ hl
          · unfold laneV0
            isplitl [F8_dst]; · iexact F8_dst
            iexists _; isplitl [R6]; · iexact R6
            ipureintro; exact lanes_zero d L a4 a6 g4 _
          iintro %_ HI
          unfold laneV0
          icases HI with ⟨H4, %g6', H6, %hl6⟩
          have hl6 : Lanes d L a4 a6 g4 g6' 200 := Eq.mp (congrArg (Lanes d L a4 a6 g4 g6') trips2) hl6
          sl_exec
          sl_for (laneV1 d L g5) $$ [F9_dst R7]
          case region =>
            intro (j : Fin k5_t3_loop.trips) _
            unfold laneV1
            iintro ⟨HA, %g, HB, %hl⟩
            sl_exec
            sl_step
            isplitl [HA]; · iexact HA
            iexists _; isplitl [HB]; · iexact HB
            ipureintro; exact lanes_step' d L a5 a7 g5 g j _ _ hl
          · unfold laneV1
            isplitl [F9_dst]; · iexact F9_dst
            iexists _; isplitl [R7]; · iexact R7
            ipureintro; exact lanes_zero d L a5 a7 g5 _
          iintro %_ HI
          unfold laneV1
          icases HI with ⟨H5, %g7', H7, %hl7⟩
          have hl7 : Lanes d L a5 a7 g5 g7' 200 := Eq.mp (congrArg (Lanes d L a5 a7 g5 g7') trips3) hl7
          sl_exec
          sl_step
          isplitr; · iexact Hmw
          isplitl [HO]
          · iexists _; isplitr
            rotate_left
            · iexact HO
            ipureintro; intro p hp
            rcases Finset.mem_insert.mp hp with rfl | hp
            · exact .inr rfl
            rcases Finset.mem_insert.mp hp with rfl | hp
            · exact .inr rfl
            rcases Finset.mem_insert.mp hp with rfl | hp
            · exact .inr rfl
            rcases Finset.mem_insert.mp hp with rfl | hp
            · exact .inr rfl
            exact hW' p hp
          isplitl [HX F8_src F9_src]
          · iapply (Entails.of_eq (xSet_in (xP d L fx) k.val hk).symm)
            isplitl [F8_src]; · iapply (Entails.of_eq (xP_pos d L fx v0).symm); iexact F8_src
            isplitl [F9_src]; · iapply (Entails.of_eq (xP_pos d L fx v1).symm); iexact F9_src
            iexact HX
          isplitl [HOut F10_dst F11_dst]
          · iapply (Entails.of_eq (oSet_in (oMix d L fx (k.val + 1)) k.val hk (by omega)).symm)
            isplitl [F10_dst]; · iapply (Entails.of_eq ((oMix_lt d L fx (t := k.val + 1) (n := 2 * k.val - 2) (by omega)).trans (oQ_pos d L fx hm0.2)).symm); iexact F10_dst
            isplitl [F11_dst]
            · iapply (Entails.of_eq ((oMix_lt d L fx (t := k.val + 1) (n := 2 * k.val - 1) (by omega)).trans (oQ_pos d L fx (n := 2 * k.val - 1) (by have := hm1.2; rwa [show 2 * k.val + 1 - 2 = 2 * k.val - 1 by omega] at this))).symm)
              iapply (Entails.of_eq (congrArg (oqPiece d L fx) (show 2 * k.val + 1 - 2 = 2 * k.val - 1 by omega))); iexact F11_dst
            iapply (Entails.of_eq (oMix_core d L fx k.val)); iexact HOut
          isplitl [F8]
          · iapply (Entails.of_eq (congrArg (inSlotV d L fx a4 cc5_scratch4.sem) (show 2 * k.val + 2 = 2 * (k.val + 1) by ring)))
            iapply (fl_inV d L fx (off_6 L k v2) (k5_off6_inb L k k5_h3) v2 a4 cc5_scratch4.sem); iexists _, _
            isplitr
            rotate_left
            · iexact F8
            ipureintro; intro y; rfl
          isplitl [F10 H6]
          · iapply (Entails.of_eq (congrArg (outSlotV d L fx a6 cc5_scratch6.sem) (show 2 * k.val + 2 = 2 * (k.val + 1) by ring)))
            iapply (fl_outV d L fx (off_5 L k v0) (k5_off5_inb L k k5_h2) v0 a4 a6 cc5_scratch6.sem f0 g4 g6' hl6 hin4); iexists _
            isplitr
            rotate_left
            · isplitl [F10]; · iexact F10
              iexact H6
            ipureintro; intro y; rfl
          isplitl [H5 F9]
          · iapply (Entails.of_eq (congrArg (inSlotV d L fx a5 cc5_scratch5.sem) (show 2 * k.val + 3 = 2 * (k.val + 1) + 1 by ring)))
            iapply (Entails.of_eq (inSlotV_neg d L fx v3').symm)
            isplitl [H5]; · iexists _; iexact H5
            iexact F9
          · iapply (Entails.of_eq (congrArg (outSlotV d L fx a7 cc5_scratch7.sem) (show 2 * k.val + 1 + 2 = 2 * (k.val + 1) + 1 by ring)))
            iapply (fl_outV d L fx (off_10 L k v1) (k5_off10_inb L k k5_h5) v1 a5 a7 cc5_scratch7.sem f1 g5 g7' hl7 hin5); iexists _
            isplitr
            rotate_left
            · isplitl [F11]; · iexact F11
              iexact H7
            ipureintro; intro y; rfl
        · have h7 : k.val = 7 := by unfold valid at v3; omega
          by_cases hb : big L
          · -- the last trip of a tile with sixteen pieces: nothing more to fetch
            have k5_h1 : k5_cond1 k = 1#1 := (cond1_iff k).mpr (by omega)
            have k5_h2 : k5_cond2 L k = 1#1 := cond2_iff L k
            have k5_h3 : ¬ k5_cond3 L k = 1#1 := fun h => absurd ((cond3_iff L k).mp h) (by omega)
            have k5_h4 : k5_cond4 k = 1#1 := (cond4_iff k).mpr (by omega)
            have k5_h5 : k5_cond5 L k = 1#1 := (cond5_iff L k).mpr (by first | (unfold valid big at *; omega) | (unfold big at *; omega) | omega)
            have k5_h6 : ¬ k5_cond6 L k = 1#1 := fun h => absurd ((cond6_iff L k).mp h) (by first | (unfold valid big at *; omega) | (unfold big at *; omega) | omega)
            have v0 : valid L (2 * k.val) := by unfold valid big at *; omega
            have v1 : valid L (2 * k.val + 1) := by unfold valid big at *; omega
            have v2 : ¬ valid L (2 * k.val + 2) := by unfold valid big at *; omega
            have v3' : ¬ valid L (2 * k.val + 3) := by unfold valid big at *; omega
            have hm0 : 2 ≤ 2 * k.val ∧ valid L (2 * k.val - 2) := ⟨by omega, by unfold valid big at *; omega⟩
            have hm1 : 2 ≤ 2 * k.val + 1 ∧ valid L (2 * k.val + 1 - 2) := ⟨by omega, by unfold valid big at *; omega⟩
            ihave S8 := (Entails.of_eq (inSlotV_pos d L fx v0)) $$ S8
            icases S8 with ⟨%g4, %hin4, F8⟩
            ihave S9 := (Entails.of_eq (inSlotV_pos d L fx v1)) $$ S9
            icases S9 with ⟨%g5, %hin5, F9⟩
            ihave S10 := (Entails.of_eq (outSlotV_pos d L fx hm0)) $$ S10
            icases S10 with ⟨%g6, F10, R6⟩
            ihave S11 := (Entails.of_eq (outSlotV_pos d L fx hm1)) $$ S11
            icases S11 with ⟨%g7, F11, R7⟩
            ihave HX := (Entails.of_eq (xSet_out (xP d L fx) k.val hk)) $$ HX
            icases HX with ⟨-, -, HX⟩
            ihave HOut := (Entails.of_eq (oSet_out (oMix d L fx k.val) k.val hk)) $$ HOut
            icases HOut with ⟨Y0, Y1, HOut⟩
            ihave Y0 := (Entails.of_eq ((oMix_ge d L fx (t := k.val) (n := 2 * k.val) (by omega)).trans (oP_pos (F := F) d L v0))) $$ Y0
            icases Y0 with ⟨%f0, Y0⟩
            ihave Y0 := (Entails.of_eq (out_congr d L (off_5 L k v0).symm (out_inb L _) (k5_off5_inb L k k5_h2) f0)) $$ Y0
            ihave Y1 := (Entails.of_eq ((oMix_ge d L fx (t := k.val) (n := 2 * k.val + 1) (by omega)).trans (oP_pos (F := F) d L v1))) $$ Y1
            icases Y1 with ⟨%f1, Y1⟩
            ihave Y1 := (Entails.of_eq (out_congr d L (off_10 L k v1).symm (out_inb L _) (k5_off10_inb L k k5_h5) f1)) $$ Y1
            sl_exec
            sl_for (laneV0 d L g4) $$ [F8_dst R6]
            case region =>
              intro (j : Fin k5_t2_loop.trips) _
              unfold laneV0
              iintro ⟨HA, %g, HB, %hl⟩
              sl_exec
              sl_step
              isplitl [HA]; · iexact HA
              iexists _; isplitl [HB]; · iexact HB
              ipureintro; exact lanes_step d L a4 a6 g4 g j _ _ hl
            · unfold laneV0
              isplitl [F8_dst]; · iexact F8_dst
              iexists _; isplitl [R6]; · iexact R6
              ipureintro; exact lanes_zero d L a4 a6 g4 _
            iintro %_ HI
            unfold laneV0
            icases HI with ⟨H4, %g6', H6, %hl6⟩
            have hl6 : Lanes d L a4 a6 g4 g6' 200 := Eq.mp (congrArg (Lanes d L a4 a6 g4 g6') trips2) hl6
            sl_exec
            sl_for (laneV1 d L g5) $$ [F9_dst R7]
            case region =>
              intro (j : Fin k5_t3_loop.trips) _
              unfold laneV1
              iintro ⟨HA, %g, HB, %hl⟩
              sl_exec
              sl_step
              isplitl [HA]; · iexact HA
              iexists _; isplitl [HB]; · iexact HB
              ipureintro; exact lanes_step' d L a5 a7 g5 g j _ _ hl
            · unfold laneV1
              isplitl [F9_dst]; · iexact F9_dst
              iexists _; isplitl [R7]; · iexact R7
              ipureintro; exact lanes_zero d L a5 a7 g5 _
            iintro %_ HI
            unfold laneV1
            icases HI with ⟨H5, %g7', H7, %hl7⟩
            have hl7 : Lanes d L a5 a7 g5 g7' 200 := Eq.mp (congrArg (Lanes d L a5 a7 g5 g7') trips3) hl7
            sl_exec
            sl_step
            isplitr; · iexact Hmw
            isplitl [HO]
            · iexists _; isplitr
              rotate_left
              · iexact HO
              ipureintro; intro p hp
              rcases Finset.mem_insert.mp hp with rfl | hp
              · exact .inr rfl
              rcases Finset.mem_insert.mp hp with rfl | hp
              · exact .inr rfl
              rcases Finset.mem_insert.mp hp with rfl | hp
              · exact .inr rfl
              rcases Finset.mem_insert.mp hp with rfl | hp
              · exact .inr rfl
              exact hW' p hp
            isplitl [HX F8_src F9_src]
            · iapply (Entails.of_eq (xSet_in (xP d L fx) k.val hk).symm)
              isplitl [F8_src]; · iapply (Entails.of_eq (xP_pos d L fx v0).symm); iexact F8_src
              isplitl [F9_src]; · iapply (Entails.of_eq (xP_pos d L fx v1).symm); iexact F9_src
              iexact HX
            isplitl [HOut F10_dst F11_dst]
            · iapply (Entails.of_eq (oSet_in (oMix d L fx (k.val + 1)) k.val hk (by omega)).symm)
              isplitl [F10_dst]; · iapply (Entails.of_eq ((oMix_lt d L fx (t := k.val + 1) (n := 2 * k.val - 2) (by omega)).trans (oQ_pos d L fx hm0.2)).symm); iexact F10_dst
              isplitl [F11_dst]
              · iapply (Entails.of_eq ((oMix_lt d L fx (t := k.val + 1) (n := 2 * k.val - 1) (by omega)).trans (oQ_pos d L fx (n := 2 * k.val - 1) (by have := hm1.2; rwa [show 2 * k.val + 1 - 2 = 2 * k.val - 1 by omega] at this))).symm)
                iapply (Entails.of_eq (congrArg (oqPiece d L fx) (show 2 * k.val + 1 - 2 = 2 * k.val - 1 by omega))); iexact F11_dst
              iapply (Entails.of_eq (oMix_core d L fx k.val)); iexact HOut
            isplitl [H4 F8]
            · iapply (Entails.of_eq (congrArg (inSlotV d L fx a4 cc5_scratch4.sem) (show 2 * k.val + 2 = 2 * (k.val + 1) by ring)))
              iapply (Entails.of_eq (inSlotV_neg d L fx v2).symm)
              isplitl [H4]; · iexists _; iexact H4
              iexact F8
            isplitl [F10 H6]
            · iapply (Entails.of_eq (congrArg (outSlotV d L fx a6 cc5_scratch6.sem) (show 2 * k.val + 2 = 2 * (k.val + 1) by ring)))
              iapply (fl_outV d L fx (off_5 L k v0) (k5_off5_inb L k k5_h2) v0 a4 a6 cc5_scratch6.sem f0 g4 g6' hl6 hin4); iexists _
              isplitr
              rotate_left
              · isplitl [F10]; · iexact F10
                iexact H6
              ipureintro; intro y; rfl
            isplitl [H5 F9]
            · iapply (Entails.of_eq (congrArg (inSlotV d L fx a5 cc5_scratch5.sem) (show 2 * k.val + 3 = 2 * (k.val + 1) + 1 by ring)))
              iapply (Entails.of_eq (inSlotV_neg d L fx v3').symm)
              isplitl [H5]; · iexists _; iexact H5
              iexact F9
            · iapply (Entails.of_eq (congrArg (outSlotV d L fx a7 cc5_scratch7.sem) (show 2 * k.val + 1 + 2 = 2 * (k.val + 1) + 1 by ring)))
              iapply (fl_outV d L fx (off_10 L k v1) (k5_off10_inb L k k5_h5) v1 a5 a7 cc5_scratch7.sem f1 g5 g7' hl7 hin5); iexists _
              isplitr
              rotate_left
              · isplitl [F11]; · iexact F11
                iexact H7
              ipureintro; intro y; rfl
          · -- the last trip of a tile with fifteen pieces: the second slot only drains
            have k5_h1 : k5_cond1 k = 1#1 := (cond1_iff k).mpr (by omega)
            have k5_h2 : k5_cond2 L k = 1#1 := cond2_iff L k
            have k5_h3 : ¬ k5_cond3 L k = 1#1 := fun h => absurd ((cond3_iff L k).mp h) (by omega)
            have k5_h4 : k5_cond4 k = 1#1 := (cond4_iff k).mpr (by omega)
            have k5_h5 : ¬ k5_cond5 L k = 1#1 := fun h => absurd ((cond5_iff L k).mp h) (by first | (unfold valid big at *; omega) | (unfold big at *; omega) | omega)
            have k5_h6 : ¬ k5_cond6 L k = 1#1 := fun h => absurd ((cond6_iff L k).mp h) (by first | (unfold valid big at *; omega) | (unfold big at *; omega) | omega)
            have v0 : valid L (2 * k.val) := by unfold valid big at *; omega
            have v1 : ¬ valid L (2 * k.val + 1) := by unfold valid big at *; omega
            have v2 : ¬ valid L (2 * k.val + 2) := by unfold valid big at *; omega
            have v3' : ¬ valid L (2 * k.val + 3) := by unfold valid big at *; omega
            have hm0 : 2 ≤ 2 * k.val ∧ valid L (2 * k.val - 2) := ⟨by omega, by unfold valid big at *; omega⟩
            have hm1 : 2 ≤ 2 * k.val + 1 ∧ valid L (2 * k.val + 1 - 2) := ⟨by omega, by unfold valid big at *; omega⟩
            ihave S8 := (Entails.of_eq (inSlotV_pos d L fx v0)) $$ S8
            icases S8 with ⟨%g4, %hin4, F8⟩
            ihave S9 := (Entails.of_eq (inSlotV_neg d L fx v1)) $$ S9
            icases S9 with ⟨⟨%g5, H5⟩, F9⟩
            ihave S10 := (Entails.of_eq (outSlotV_pos d L fx hm0)) $$ S10
            icases S10 with ⟨%g6, F10, R6⟩
            ihave S11 := (Entails.of_eq (outSlotV_pos d L fx hm1)) $$ S11
            icases S11 with ⟨%g7, F11, R7⟩
            ihave HX := (Entails.of_eq (xSet_out (xP d L fx) k.val hk)) $$ HX
            icases HX with ⟨-, -, HX⟩
            ihave HOut := (Entails.of_eq (oSet_out (oMix d L fx k.val) k.val hk)) $$ HOut
            icases HOut with ⟨Y0, -, HOut⟩
            ihave Y0 := (Entails.of_eq ((oMix_ge d L fx (t := k.val) (n := 2 * k.val) (by omega)).trans (oP_pos (F := F) d L v0))) $$ Y0
            icases Y0 with ⟨%f0, Y0⟩
            ihave Y0 := (Entails.of_eq (out_congr d L (off_5 L k v0).symm (out_inb L _) (k5_off5_inb L k k5_h2) f0)) $$ Y0
            sl_exec
            sl_for (laneV0 d L g4) $$ [F8_dst R6]
            case region =>
              intro (j : Fin k5_t2_loop.trips) _
              unfold laneV0
              iintro ⟨HA, %g, HB, %hl⟩
              sl_exec
              sl_step
              isplitl [HA]; · iexact HA
              iexists _; isplitl [HB]; · iexact HB
              ipureintro; exact lanes_step d L a4 a6 g4 g j _ _ hl
            · unfold laneV0
              isplitl [F8_dst]; · iexact F8_dst
              iexists _; isplitl [R6]; · iexact R6
              ipureintro; exact lanes_zero d L a4 a6 g4 _
            iintro %_ HI
            unfold laneV0
            icases HI with ⟨H4, %g6', H6, %hl6⟩
            have hl6 : Lanes d L a4 a6 g4 g6' 200 := Eq.mp (congrArg (Lanes d L a4 a6 g4 g6') trips2) hl6
            sl_exec
            sl_step
            isplitr; · iexact Hmw
            isplitl [HO]
            · iexists _; isplitr
              rotate_left
              · iexact HO
              ipureintro; intro p hp
              rcases Finset.mem_insert.mp hp with rfl | hp
              · exact .inr rfl
              rcases Finset.mem_insert.mp hp with rfl | hp
              · exact .inr rfl
              rcases Finset.mem_insert.mp hp with rfl | hp
              · exact .inr rfl
              exact hW' p hp
            isplitl [HX F8_src]
            · iapply (Entails.of_eq (xSet_in (xP d L fx) k.val hk).symm)
              isplitl [F8_src]; · iapply (Entails.of_eq (xP_pos d L fx v0).symm); iexact F8_src
              isplitr; · iapply (Entails.of_eq (xP_neg d L fx v1).symm); iempintro
              iexact HX
            isplitl [HOut F10_dst F11_dst]
            · iapply (Entails.of_eq (oSet_in (oMix d L fx (k.val + 1)) k.val hk (by omega)).symm)
              isplitl [F10_dst]; · iapply (Entails.of_eq ((oMix_lt d L fx (t := k.val + 1) (n := 2 * k.val - 2) (by omega)).trans (oQ_pos d L fx hm0.2)).symm); iexact F10_dst
              isplitl [F11_dst]
              · iapply (Entails.of_eq ((oMix_lt d L fx (t := k.val + 1) (n := 2 * k.val - 1) (by omega)).trans (oQ_pos d L fx (n := 2 * k.val - 1) (by have := hm1.2; rwa [show 2 * k.val + 1 - 2 = 2 * k.val - 1 by omega] at this))).symm)
                iapply (Entails.of_eq (congrArg (oqPiece d L fx) (show 2 * k.val + 1 - 2 = 2 * k.val - 1 by omega))); iexact F11_dst
              iapply (Entails.of_eq (oMix_core d L fx k.val)); iexact HOut
            isplitl [H4 F8]
            · iapply (Entails.of_eq (congrArg (inSlotV d L fx a4 cc5_scratch4.sem) (show 2 * k.val + 2 = 2 * (k.val + 1) by ring)))
              iapply (Entails.of_eq (inSlotV_neg d L fx v2).symm)
              isplitl [H4]; · iexists _; iexact H4
              iexact F8
            isplitl [F10 H6]
            · iapply (Entails.of_eq (congrArg (outSlotV d L fx a6 cc5_scratch6.sem) (show 2 * k.val + 2 = 2 * (k.val + 1) by ring)))
              iapply (fl_outV d L fx (off_5 L k v0) (k5_off5_inb L k k5_h2) v0 a4 a6 cc5_scratch6.sem f0 g4 g6' hl6 hin4); iexists _
              isplitr
              rotate_left
              · isplitl [F10]; · iexact F10
                iexact H6
              ipureintro; intro y; rfl
            isplitl [H5 F9]
            · iapply (Entails.of_eq (congrArg (inSlotV d L fx a5 cc5_scratch5.sem) (show 2 * k.val + 3 = 2 * (k.val + 1) + 1 by ring)))
              iapply (Entails.of_eq (inSlotV_neg d L fx v3').symm)
              isplitl [H5]; · iexists _; iexact H5
              iexact F9
            · iapply (Entails.of_eq (outSlotV_neg d L fx (m := 2 * (k.val + 1) + 1) (by intro h; apply v1; have := h.2; rwa [show 2 * (k.val + 1) + 1 - 2 = 2 * k.val + 1 by omega] at this)).symm)
              isplitl [R7]; · iexists _; iexact R7
              iexact F11
    · have hk0 : k.val = 0 := by omega
      -- the first trip: nothing to drain
      have k5_h1 : ¬ k5_cond1 k = 1#1 := fun h => absurd ((cond1_iff k).mp h) (by omega)
      have k5_h2 : k5_cond2 L k = 1#1 := cond2_iff L k
      have k5_h3 : k5_cond3 L k = 1#1 := (cond3_iff L k).mpr (by omega)
      have k5_h4 : ¬ k5_cond4 k = 1#1 := fun h => absurd ((cond4_iff k).mp h) (by omega)
      have k5_h5 : k5_cond5 L k = 1#1 := (cond5_iff L k).mpr (by first | (unfold valid big at *; omega) | (unfold big at *; omega) | omega)
      have k5_h6 : k5_cond6 L k = 1#1 := (cond6_iff L k).mpr (by first | (unfold valid big at *; omega) | (unfold big at *; omega) | omega)
      have v0 : valid L (2 * k.val) := by unfold valid big at *; omega
      have v1 : valid L (2 * k.val + 1) := by unfold valid big at *; omega
      have v2 : valid L (2 * k.val + 2) := by unfold valid big at *; omega
      have v3' : valid L (2 * k.val + 3) := by unfold valid big at *; omega
      have hm0 : ¬ (2 ≤ 2 * k.val ∧ valid L (2 * k.val - 2)) := by omega
      have hm1 : ¬ (2 ≤ 2 * k.val + 1 ∧ valid L (2 * k.val + 1 - 2)) := by omega
      ihave S8 := (Entails.of_eq (inSlotV_pos d L fx v0)) $$ S8
      icases S8 with ⟨%g4, %hin4, F8⟩
      ihave S9 := (Entails.of_eq (inSlotV_pos d L fx v1)) $$ S9
      icases S9 with ⟨%g5, %hin5, F9⟩
      ihave S10 := (Entails.of_eq (outSlotV_neg d L fx hm0)) $$ S10
      icases S10 with ⟨⟨%g6, R6⟩, F10⟩
      ihave S11 := (Entails.of_eq (outSlotV_neg d L fx hm1)) $$ S11
      icases S11 with ⟨⟨%g7, R7⟩, F11⟩
      ihave HX := (Entails.of_eq (xSet_out (xP d L fx) k.val hk)) $$ HX
      icases HX with ⟨X2, X3, HX⟩
      ihave X2 := (Entails.of_eq (xP_pos d L fx v2)) $$ X2
      ihave X2 := (Entails.of_eq (in_congr d L (off_6 L k v2).symm (in_inb L _) (k5_off6_inb L k k5_h3) fx)) $$ X2
      ihave X3 := (Entails.of_eq (xP_pos d L fx v3')) $$ X3
      ihave X3 := (Entails.of_eq (in_congr d L (off_11 L k v3').symm (in_inb L _) (k5_off11_inb L k k5_h6) fx)) $$ X3
      ihave HOut := (Entails.of_eq (oSet_out (oMix d L fx k.val) k.val hk)) $$ HOut
      icases HOut with ⟨Y0, Y1, HOut⟩
      ihave Y0 := (Entails.of_eq ((oMix_ge d L fx (t := k.val) (n := 2 * k.val) (by omega)).trans (oP_pos (F := F) d L v0))) $$ Y0
      icases Y0 with ⟨%f0, Y0⟩
      ihave Y0 := (Entails.of_eq (out_congr d L (off_5 L k v0).symm (out_inb L _) (k5_off5_inb L k k5_h2) f0)) $$ Y0
      ihave Y1 := (Entails.of_eq ((oMix_ge d L fx (t := k.val) (n := 2 * k.val + 1) (by omega)).trans (oP_pos (F := F) d L v1))) $$ Y1
      icases Y1 with ⟨%f1, Y1⟩
      ihave Y1 := (Entails.of_eq (out_congr d L (off_10 L k v1).symm (out_inb L _) (k5_off10_inb L k k5_h5) f1)) $$ Y1
      sl_exec
      sl_for (laneV0 d L g4) $$ [F8_dst R6]
      case region =>
        intro (j : Fin k5_t2_loop.trips) _
        unfold laneV0
        iintro ⟨HA, %g, HB, %hl⟩
        sl_exec
        sl_step
        isplitl [HA]; · iexact HA
        iexists _; isplitl [HB]; · iexact HB
        ipureintro; exact lanes_step d L a4 a6 g4 g j _ _ hl
      · unfold laneV0
        isplitl [F8_dst]; · iexact F8_dst
        iexists _; isplitl [R6]; · iexact R6
        ipureintro; exact lanes_zero d L a4 a6 g4 _
      iintro %_ HI
      unfold laneV0
      icases HI with ⟨H4, %g6', H6, %hl6⟩
      have hl6 : Lanes d L a4 a6 g4 g6' 200 := Eq.mp (congrArg (Lanes d L a4 a6 g4 g6') trips2) hl6
      sl_exec
      sl_for (laneV1 d L g5) $$ [F9_dst R7]
      case region =>
        intro (j : Fin k5_t3_loop.trips) _
        unfold laneV1
        iintro ⟨HA, %g, HB, %hl⟩
        sl_exec
        sl_step
        isplitl [HA]; · iexact HA
        iexists _; isplitl [HB]; · iexact HB
        ipureintro; exact lanes_step' d L a5 a7 g5 g j _ _ hl
      · unfold laneV1
        isplitl [F9_dst]; · iexact F9_dst
        iexists _; isplitl [R7]; · iexact R7
        ipureintro; exact lanes_zero d L a5 a7 g5 _
      iintro %_ HI
      unfold laneV1
      icases HI with ⟨H5, %g7', H7, %hl7⟩
      have hl7 : Lanes d L a5 a7 g5 g7' 200 := Eq.mp (congrArg (Lanes d L a5 a7 g5 g7') trips3) hl7
      sl_exec
      sl_step
      isplitr; · iexact Hmw
      isplitl [HO]
      · iexists _; isplitr
        rotate_left
        · iexact HO
        ipureintro; intro p hp
        rcases Finset.mem_insert.mp hp with rfl | hp
        · exact .inr rfl
        rcases Finset.mem_insert.mp hp with rfl | hp
        · exact .inr rfl
        exact hW' p hp
      isplitl [HX F8_src F9_src]
      · iapply (Entails.of_eq (xSet_in (xP d L fx) k.val hk).symm)
        isplitl [F8_src]; · iapply (Entails.of_eq (xP_pos d L fx v0).symm); iexact F8_src
        isplitl [F9_src]; · iapply (Entails.of_eq (xP_pos d L fx v1).symm); iexact F9_src
        iexact HX
      isplitl [HOut]
      · iapply (Entails.of_eq (congrArg (fun s => bigSep s (oMix d L fx (k.val + 1))) (show oCore k.val = oSet (k.val + 1) by rw [hk0]; decide)))
        iapply (Entails.of_eq (oMix_core d L fx k.val)); iexact HOut
      isplitl [F8]
      · iapply (Entails.of_eq (congrArg (inSlotV d L fx a4 cc5_scratch4.sem) (show 2 * k.val + 2 = 2 * (k.val + 1) by ring)))
        iapply (fl_inV d L fx (off_6 L k v2) (k5_off6_inb L k k5_h3) v2 a4 cc5_scratch4.sem); iexists _, _
        isplitr
        rotate_left
        · iexact F8
        ipureintro; intro y; rfl
      isplitl [F10 H6]
      · iapply (Entails.of_eq (congrArg (outSlotV d L fx a6 cc5_scratch6.sem) (show 2 * k.val + 2 = 2 * (k.val + 1) by ring)))
        iapply (fl_outV d L fx (off_5 L k v0) (k5_off5_inb L k k5_h2) v0 a4 a6 cc5_scratch6.sem f0 g4 g6' hl6 hin4); iexists _
        isplitr
        rotate_left
        · isplitl [F10]; · iexact F10
          iexact H6
        ipureintro; intro y; rfl
      isplitl [F9]
      · iapply (Entails.of_eq (congrArg (inSlotV d L fx a5 cc5_scratch5.sem) (show 2 * k.val + 3 = 2 * (k.val + 1) + 1 by ring)))
        iapply (fl_inV d L fx (off_11 L k v3') (k5_off11_inb L k k5_h6) v3' a5 cc5_scratch5.sem); iexists _, _
        isplitr
        rotate_left
        · iexact F9
        ipureintro; intro y; rfl
      · iapply (Entails.of_eq (congrArg (outSlotV d L fx a7 cc5_scratch7.sem) (show 2 * k.val + 1 + 2 = 2 * (k.val + 1) + 1 by ring)))
        iapply (fl_outV d L fx (off_10 L k v1) (k5_off10_inb L k k5_h5) v1 a5 a7 cc5_scratch7.sem f1 g5 g7' hl7 hin5); iexists _
        isplitr
        rotate_left
        · isplitl [F11]; · iexact F11
          iexact H7
        ipureintro; intro y; rfl
  · unfold invV
    isplitr; · iexact Hmw
    isplitl [HO]
    · iexists W; isplitr
      · ipureintro; exact fun p hp => .inl hp
      · iexact HO
    isplitl [HX]; · iexact HX
    isplitl [HOut]; · iapply (Entails.of_eq (oMix_zero d L fx).symm); iexact HOut
    isplitl [S8]; · iexact S8
    isplitl [H6 Hs10]
    · rw [outSlotV_neg d L fx (by omega)]; isplitl [H6]; · iexists _; iexact H6
      iexact Hs10
    isplitl [S9]; · iexact S9
    rw [outSlotV_neg d L fx (by omega)]; isplitl [H7]; · iexists _; iexact H7
    iexact Hs11
  iintro %acc' HI
  ihave HI := (Entails.of_eq (congrArg (fun t => invV d L O W fx t acc') trips1)) $$ HI
  unfold invV
  icases HI with ⟨-, ⟨%W', %hW', HO⟩, HX, HOut, S8, S10, S9, S11⟩
  have nv16 : ¬ valid L (2 * 8) := by unfold valid; omega
  have nv17 : ¬ valid L (2 * 8 + 1) := by unfold valid; omega
  have hm14 : 2 ≤ 2 * 8 ∧ valid L (2 * 8 - 2) := ⟨by omega, Or.inl (by omega)⟩
  ihave S8 := (Entails.of_eq (inSlotV_neg d L fx nv16)) $$ S8
  icases S8 with ⟨⟨%g4', H4⟩, Hs8⟩
  ihave S9 := (Entails.of_eq (inSlotV_neg d L fx nv17)) $$ S9
  icases S9 with ⟨⟨%g5', H5⟩, Hs9⟩
  ihave S10 := (Entails.of_eq (outSlotV_pos d L fx hm14)) $$ S10
  icases S10 with ⟨%g6', F10, R6⟩
  by_cases hb : big L
  · have k5_h8 : k5_cond8 L = 1#1 := (cond8_iff L).mpr hb
    have hm15 : 2 ≤ 2 * 8 + 1 ∧ valid L (2 * 8 + 1 - 2) := ⟨by omega, Or.inr ⟨by omega, hb⟩⟩
    ihave S11 := (Entails.of_eq (outSlotV_pos d L fx hm15)) $$ S11
    icases S11 with ⟨%g7', F11, R7⟩
    sl_exec
    sl_step
    isplitl [HX]; · iapply (xRange_end d L fx); iexact HX
    isplitl [HOut F10_dst F11_dst]
    · iapply (Entails.of_eq (oRange_end (oQ d L fx)).symm)
      isplitl [F10_dst]; · iapply (Entails.of_eq (oQ_pos d L fx hm14.2).symm); iexact F10_dst
      isplitl [F11_dst]; · iapply (Entails.of_eq (oQ_pos d L fx hm15.2).symm); iexact F11_dst
      iapply (Entails.of_eq (oMix_end d L fx)); iexact HOut
    isplitl [H4]; · iexists _; iexact H4
    isplitl [H5]; · iexists _; iexact H5
    isplitl [R6]; · iexists _; iexact R6
    isplitl [R7]; · iexists _; iexact R7
    isplitl [Hs8]; · iexact Hs8
    isplitl [Hs9]; · iexact Hs9
    isplitl [F10]; · iexact F10
    isplitl [F11]; · iexact F11
    isplitl [HO]
    · iexists _; isplitr
      rotate_left
      · iexact HO
      ipureintro; intro p hp
      rcases Finset.mem_insert.mp hp with rfl | hp
      · exact .inr rfl
      rcases Finset.mem_insert.mp hp with rfl | hp
      · exact .inr rfl
      exact hW' p hp
    iexact HR
  · have k5_h8 : ¬ k5_cond8 L = 1#1 := fun h => hb ((cond8_iff L).mp h)
    have hm15 : ¬ (2 ≤ 2 * 8 + 1 ∧ valid L (2 * 8 + 1 - 2)) := by intro h; have := h.2; unfold valid at this; omega
    ihave S11 := (Entails.of_eq (outSlotV_neg d L fx hm15)) $$ S11
    icases S11 with ⟨⟨%g7', R7⟩, F11⟩
    sl_exec
    sl_step
    isplitl [HX]; · iapply (xRange_end d L fx); iexact HX
    isplitl [HOut F10_dst]
    · iapply (Entails.of_eq (oRange_end (oQ d L fx)).symm)
      isplitl [F10_dst]; · iapply (Entails.of_eq (oQ_pos d L fx hm14.2).symm); iexact F10_dst
      isplitr; · iapply (Entails.of_eq (oQ_neg d L fx (n := 15) (by unfold valid; omega)).symm); iempintro
      iapply (Entails.of_eq (oMix_end d L fx)); iexact HOut
    isplitl [H4]; · iexists _; iexact H4
    isplitl [H5]; · iexists _; iexact H5
    isplitl [R6]; · iexists _; iexact R6
    isplitl [R7]; · iexists _; iexact R7
    isplitl [Hs8]; · iexact Hs8
    isplitl [Hs9]; · iexact Hs9
    isplitl [F10]; · iexact F10
    isplitl [F11]; · iexact F11
    isplitl [HO]
    · iexists _; isplitr
      rotate_left
      · iexact HO
      ipureintro; intro p hp
      rcases Finset.mem_insert.mp hp with rfl | hp
      · exact .inr rfl
      exact hW' p hp
    iexact HR

/-! The subcore's scoped storage: the four staging buffers and the four semaphores of this call, and the rest. -/

abbrev c8 : GSem nD τ sig := (thr d L, SemLoc.dma cc5_scratch4.sem)
abbrev c9 : GSem nD τ sig := (thr d L, SemLoc.dma cc5_scratch5.sem)
abbrev c10 : GSem nD τ sig := (thr d L, SemLoc.dma cc5_scratch6.sem)
abbrev c11 : GSem nD τ sig := (thr d L, SemLoc.dma cc5_scratch7.sem)

omit [FloatOps F] in
theorem ownSems0_V :
    (ownSems0 (thr d L) : sProp 𝕄)
      = iprop(semVal (c8 d L) 0 ∗ semVal (c9 d L) 0 ∗ semVal (c10 d L) 0 ∗ semVal (c11 d L) 0
          ∗ bigSep (((((ownCells (thr d L)).erase (c8 d L)).erase (c9 d L)).erase (c10 d L)).erase (c11 d L)) fun g => semVal g 0) := by
  unfold SparseCore.Cfg.ownSems0
  rw [SparseCore.bigSep_erase' ((mem_ownCells (g := c8 d L)).mpr ⟨rfl, by
      show (SemLoc.dma cc5_scratch4.sem : SemLoc sig).isScoped .scVector = true; decide⟩),
    SparseCore.bigSep_erase' (Finset.mem_erase.mpr ⟨fun e => absurd (Prod.mk.inj e).2 (by decide), (mem_ownCells (g := c9 d L)).mpr ⟨rfl, by
      show (SemLoc.dma cc5_scratch5.sem : SemLoc sig).isScoped .scVector = true; decide⟩⟩),
    SparseCore.bigSep_erase' (Finset.mem_erase.mpr ⟨fun e => absurd (Prod.mk.inj e).2 (by decide), Finset.mem_erase.mpr ⟨fun e => absurd (Prod.mk.inj e).2 (by decide),
      (mem_ownCells (g := c10 d L)).mpr ⟨rfl, by show (SemLoc.dma cc5_scratch6.sem : SemLoc sig).isScoped .scVector = true; decide⟩⟩⟩),
    SparseCore.bigSep_erase' (Finset.mem_erase.mpr ⟨fun e => absurd (Prod.mk.inj e).2 (by decide), Finset.mem_erase.mpr ⟨fun e => absurd (Prod.mk.inj e).2 (by decide),
      Finset.mem_erase.mpr ⟨fun e => absurd (Prod.mk.inj e).2 (by decide),
      (mem_ownCells (g := c11 d L)).mpr ⟨rfl, by show (SemLoc.dma cc5_scratch7.sem : SemLoc sig).isScoped .scVector = true; decide⟩⟩⟩⟩)]

abbrev pV (L : grid5.Coords) : Proc τ := Proc.scVector (cV L) (jV L)

omit [FloatOps F] in
theorem ownBufs_V :
    (ownBufs (thr d L) : sProp 𝕄)
      = iprop((∃ f, (thr d L).loc cc5_scratch0 ↦{fullShare} f) ∗ (∃ f, (thr d L).loc cc5_scratch1 ↦{fullShare} f)
          ∗ (∃ f, (thr d L).loc cc5_scratch2 ↦{fullShare} f) ∗ (∃ f, (thr d L).loc cc5_scratch3 ↦{fullShare} f)
          ∗ bigSep (((((ownRefs (τ := τ) (pV L)).erase ((pV L).devRef cc5_scratch0)).erase ((pV L).devRef cc5_scratch1)).erase
              ((pV L).devRef cc5_scratch2)).erase ((pV L).devRef cc5_scratch3))
              fun b => iprop(∃ f, ((d, b) : Loc nD τ sig) ↦{fullShare} f)) := by
  unfold SparseCore.Cfg.ownBufs
  refine (SparseCore.bigSep_erase' (SparseCore.Cfg.mem_ownRefs_of_owner (p := pV L) (b := (pV L).devRef cc5_scratch0) rfl)).trans ?_
  rw [SparseCore.bigSep_erase' (Finset.mem_erase.mpr ⟨fun e => absurd (Proc.devRef_injective _ e) (show (cc5_scratch1 : Ref sig .scVector) ≠ cc5_scratch0 by decide),
      SparseCore.Cfg.mem_ownRefs_of_owner (p := pV L) (b := (pV L).devRef cc5_scratch1) rfl⟩),
    SparseCore.bigSep_erase' (Finset.mem_erase.mpr ⟨fun e => absurd (Proc.devRef_injective _ e) (show (cc5_scratch2 : Ref sig .scVector) ≠ cc5_scratch1 by decide),
      Finset.mem_erase.mpr ⟨fun e => absurd (Proc.devRef_injective _ e) (show (cc5_scratch2 : Ref sig .scVector) ≠ cc5_scratch0 by decide),
      SparseCore.Cfg.mem_ownRefs_of_owner (p := pV L) (b := (pV L).devRef cc5_scratch2) rfl⟩⟩),
    SparseCore.bigSep_erase' (Finset.mem_erase.mpr ⟨fun e => absurd (Proc.devRef_injective _ e) (show (cc5_scratch3 : Ref sig .scVector) ≠ cc5_scratch2 by decide),
      Finset.mem_erase.mpr ⟨fun e => absurd (Proc.devRef_injective _ e) (show (cc5_scratch3 : Ref sig .scVector) ≠ cc5_scratch1 by decide),
      Finset.mem_erase.mpr ⟨fun e => absurd (Proc.devRef_injective _ e) (show (cc5_scratch3 : Ref sig .scVector) ≠ cc5_scratch0 by decide),
      SparseCore.Cfg.mem_ownRefs_of_owner (p := pV L) (b := (pV L).devRef cc5_scratch3) rfl⟩⟩⟩)]

/-- The rest of the subcore's scoped storage, which the task does not touch. -/
def restR : sProp 𝕄 :=
  iprop((bigSep (((((ownRefs (τ := τ) (pV L)).erase ((pV L).devRef cc5_scratch0)).erase ((pV L).devRef cc5_scratch1)).erase
              ((pV L).devRef cc5_scratch2)).erase ((pV L).devRef cc5_scratch3))
              fun b => iprop(∃ f, ((d, b) : Loc nD τ sig) ↦{fullShare} f))
      ∗ bigSep (((((ownCells (thr d L)).erase (c8 d L)).erase (c9 d L)).erase (c10 d L)).erase (c11 d L)) fun g => semVal g 0)

theorem body_pre (hO : ∀ g, O g none = 0) :
    iprop(levAts (K (F := F)).L (K (F := F)).lev ∗ emp ∗ goRes d L fx ∗ ownBufs (thr d L) ∗ ownSems0 (thr d L) ∗ owes (thr d L) O W)
      ⊢ runPre d L O W fx (restR (F := F) d L) := by
  rw [ownSems0_V, ownBufs_V]
  unfold goRes runPre restR
  iintro ⟨#Hlv, -, ⟨HX, HOut⟩, ⟨H4, H5, H6, H7, Hbufs⟩, ⟨Hs8, Hs9, Hs10, Hs11, Hsems⟩, HO⟩
  ihave Hmw := ((K (F := F)).mayWaits_none (thr := thr d L) hO) $$ Hlv
  isplitr; · iexact Hmw
  isplitl [HO]; · iexact HO
  isplitl [HX]; · iexact HX
  isplitl [HOut]; · iexact HOut
  isplitl [H4]; · iexact H4
  isplitl [H5]; · iexact H5
  isplitl [H6]; · iexact H6
  isplitl [H7]; · iexact H7
  isplitl [Hs8]; · iexact Hs8
  isplitl [Hs9]; · iexact Hs9
  isplitl [Hs10]; · iexact Hs10
  isplitl [Hs11]; · iexact Hs11
  isplitl [Hbufs]; · iexact Hbufs
  iexact Hsems

theorem body_post :
    runPost d L O W fx (restR (F := F) d L)
      ⊢ iprop(tdRes d L fx ∗ ownBufs (thr d L) ∗ ownSems0 (thr d L) ∗ ∃ W', ⌜∀ p ∈ W', p ∈ W ∨ p.2 = none⌝ ∗ owes (thr d L) O W') := by
  rw [ownSems0_V, ownBufs_V]
  unfold tdRes runPost restR
  iintro ⟨HX, HOut, H4, H5, H6, H7, Hs8, Hs9, Hs10, Hs11, HW, Hbufs, Hsems⟩
  isplitl [HX HOut]
  · isplitl [HX]; · iexact HX
    iexact HOut
  isplitl [H4 H5 H6 H7 Hbufs]
  · isplitl [H4]; · iexact H4
    isplitl [H5]; · iexact H5
    isplitl [H6]; · iexact H6
    isplitl [H7]; · iexact H7
    iexact Hbufs
  isplitl [Hs8 Hs9 Hs10 Hs11 Hsems]
  · isplitl [Hs8]; · iexact Hs8
    isplitl [Hs9]; · iexact Hs9
    isplitl [Hs10]; · iexact Hs10
    isplitl [Hs11]; · iexact Hs11
    iexact Hsems
  iexact HW

/-- The task in the launch theorem's shape: from what the call hands the tile and the subcore's scoped storage to
    what the tile hands back and the storage again. -/
theorem tile_body (hF : (K (F := F)).Facts) (hO : ∀ g, O g none = 0) :
    iprop(levAts (K (F := F)).L (K (F := F)).lev ∗ emp ∗ goRes d L fx ∗ scopedBufs (thr d L) ∗ scopedSems0 (thr d L) ∗ owes (thr d L) O W)
      ⊢ wp frame (wpE (defs₀ (F := F)) 𝒱₀ (thr d L) none) Set.univ
          (cc5_sc_group L xtW (Memref.isWhole_whole _) oW (Memref.isWhole_whole _) a4 (Memref.isWhole_whole _) a5 (Memref.isWhole_whole _)
            a6 (Memref.isWhole_whole _) a7 (Memref.isWhole_whole _) cc5_scratch4 cc5_scratch5 cc5_scratch6 cc5_scratch7)
          fun _ => iprop(tdRes d L fx ∗ scopedBufs (thr d L) ∗ scopedSems0 (thr d L)
            ∗ ∃ W', ⌜∀ p ∈ W', p ∈ W ∨ p.2 = none⌝ ∗ owes (thr d L) O W') := by
  rw [(K (F := F)).scopedBufs_V hF d (cV L) (jV L), SparseCore.Cfg.scopedSems0_V (Val := Elt F) d (cV L) (jV L)]
  exact (body_pre d L O W fx hO).trans ((tile_run d L O W fx (restR (F := F) d L)).trans (wp_mono frame _ _ fun _ => body_post d L O W fx))

end Tile

end Cert.Proof.TileK5

end
-- ==== Proof.TileBVal5.lean ====
/-
  What the staging buffers of one vector subcore hold while it copies a piece of 3200 consecutive elements of row 5 of
  the transposed argument into the flat result, read index by index. No program and no ownership here: only the contents.

  A transfer lands the piece in row 0 of an 8 × 3200 staging array (`InRow`: position (0, t) of that row holds element
  (0, pos + t) of the transposed argument, `pos` the piece's first column). A loop of 200 trips copies that row, 16 lanes
  per trip, into the first 3200 elements of a flat staging array of 25600: trip `j` reads the 1 × 16 window at columns
  [16 j, 16 j + 16) of row 0 and writes it, flattened, at elements [16 j, 16 j + 16). After `j` trips the first 16 j
  elements of the flat array are the first 16 j elements of the row (`Lanes`); a trip extends the prefix by 16
  (`lanes_step`: an element below 16 j is outside the window written and keeps its value, an element of the window reads
  the lane written there, which is the row's element at the same column). A second transfer writes the first 3200
  elements of the flat array to the piece of the result at the same `pos`; so every element of that piece of the result
  holds the element of row 5 of the transposed argument at its own position (`out_written`): the composite of the three
  index maps t ↦ (0, pos + t) ↦ (0, t) ↦ t ↦ pos + t is the identity on positions of the row.
-/
import proofs.«206869_g37898791420194_cont_8to1_b_558_20_alg».proof.Proof.TileB5Defs
import proofs.«206869_g37898791420194_cont_8to1_b_558_20_alg».proof.Proof.Spec
import Idealize.ShloMosaic.Lib.WritesUnit
import Idealize.ShloMosaic.Lib.ValueLayout

noncomputable section

namespace Cert.Proof.TileBVal5

open Cert.Proof.TileB5 Cert.Kernel Cert.Kernel.Gen
open Idealize.ShloMosaic Idealize.ShloMosaic.ValueIdx

variable {F : FTy → Type} [FloatOps F]
variable (d : Dev nD) (L : grid5.Coords)
variable (fx : Buf (Elt F) ((Memref.whole main_v0_scv : Memref sig .scVector .hbm S22x1600000 .f32).view.loc (thr d L)))

abbrev rowRect : Rect S8x3200 := Rect.unit (s := S8x3200) ![0, 0] S1x3200.size inb_S8x3200_S1x3200_0_0

/-- row 0 of the staging array is piece n of the argument row -/
def InRow (a : Memref sig .scVector .vmem S8x3200 .f32) (ga : Buf (Elt F) (a.view.loc (thr d L))) (n : ℕ) : Prop :=
  ∀ y : S1x3200.Idx, a.view.read (Elt F) ga (rowRect.emb y) = (inM L n).view.read (Elt F) fx y

theorem inRow_fetch (a : Memref sig .scVector .vmem S8x3200 .f32) (gold : Buf (Elt F) (a.view.loc (thr d L)))
    (w : S1x3200.Idx → Elt F .f32) (n : ℕ) (hw : ∀ y, w y = (inM L n).view.read (Elt F) fx y) :
    InRow d L fx a (a.view.writes (Elt F) gold [⟨rowRect, w⟩]) n :=
  fun y => (View.read_writes_cons_emb a.view gold rowRect w [] y).trans (hw y)

def Lanes (a : Memref sig .scVector .vmem S8x3200 .f32) (b : Memref sig .scVector .vmem S25600 .f32)
    (ga : Buf (Elt F) (a.view.loc (thr d L))) (gb : Buf (Elt F) (b.view.loc (thr d L))) (j : ℕ) : Prop :=
  ∀ (r : ℕ) (hr : r < 3200), r < 16 * j →
    b.view.read (Elt F) gb (ix1 (⟨r, by omega⟩ : Fin 25600)) = a.view.read (Elt F) ga (ix2 (0 : Fin 8) (⟨r, hr⟩ : Fin 3200))

theorem lanes_zero (a : Memref sig .scVector .vmem S8x3200 .f32) (b : Memref sig .scVector .vmem S25600 .f32)
    (ga : Buf (Elt F) (a.view.loc (thr d L))) (gb : Buf (Elt F) (b.view.loc (thr d L))) : Lanes d L a b ga gb 0 := by
  intro r hr h; omega

/-- The 1 × 16 window at column `c` of the staging array, read at lane `t`, is element `(0, c + t)`. -/
theorem idx_window {off : Fin 2 → ℕ} {c : ℕ} (h : off = ![0, c]) (p : ∀ a', off a' + S1x16.size a' ≤ S8x3200.size a')
    (t : Fin 16) (hr : c + t.val < 3200) :
    (Rect.unit (s := S8x3200) off S1x16.size p).toLoadRect.idx (ix2 (0 : Fin 1) t) = ix2 (0 : Fin 8) (⟨c + t.val, hr⟩ : Fin 3200) := by
  subst h
  funext a'; apply Fin.ext
  rw [LoadRect.idx_apply]
  match a' with
  | ⟨0, _⟩ => show 0 + 1 * 0 = 0; omega
  | ⟨1, _⟩ => show c + 1 * t.val = c + t.val; omega

/-- One trip of a lane-copy loop, the offsets given by their closed forms. -/
theorem lanes_step_core (a : Memref sig .scVector .vmem S8x3200 .f32) (b : Memref sig .scVector .vmem S25600 .f32)
    (ga : Buf (Elt F) (a.view.loc (thr d L))) (gb : Buf (Elt F) (b.view.loc (thr d L)))
    (t : ℕ) {off3 : Fin 2 → ℕ} {off4 : Fin 1 → ℕ} (h3 : off3 = ![0, 16 * t]) (h4 : off4 = ![16 * t])
    (p3 : ∀ a', off3 a' + S1x16.size a' ≤ S8x3200.size a') (p4 : ∀ a', off4 a' + S16.size a' ≤ S25600.size a')
    (h : Lanes d L a b ga gb t) :
    Lanes d L a b ga (b.view.writes (Elt F) gb [⟨Rect.unit (s := S25600) off4 S16.size p4,
      shapeCast S16 (a.view.readAt (Elt F) (Rect.unit (s := S8x3200) off3 S1x16.size p3).toLoadRect ga) shapeCasts_S1x16_S16⟩]) (t + 1) := by
  intro r hr hlt
  by_cases hlo : r < 16 * t
  · refine (View.read_writes_cons_unit_of_not_mem b.view gb p4 _ [] _ h4 (0 : Fin 1) (Or.inl ?_)).trans (h r hr hlo)
    show r < 16 * t
    exact hlo
  · have hx : r - 16 * t < 16 := by omega
    refine (View.read_writes_cons_unit_of_mem b.view gb p4 _ [] _ (ix1 (⟨r - 16 * t, hx⟩ : Fin 16)) h4 ?_).trans ?_
    · intro a'
      match a' with
      | ⟨0, _⟩ => show r = 16 * t + (r - 16 * t); omega
    · rw [shapeCast_1a_a_apply, View.readAt_apply, idx_window h3 p3 ⟨r - 16 * t, hx⟩ (by show 16 * t + (r - 16 * t) < 3200; omega)]
      congr 2
      apply Fin.ext
      show 16 * t + (r - 16 * t) = r
      omega

theorem lanes_step (a : Memref sig .scVector .vmem S8x3200 .f32) (b : Memref sig .scVector .vmem S25600 .f32)
    (ga : Buf (Elt F) (a.view.loc (thr d L))) (gb : Buf (Elt F) (b.view.loc (thr d L)))
    (j : Fin k5_t2_loop.trips) (p3 : ∀ a', (k5_off3 j) a' + S1x16.size a' ≤ S8x3200.size a')
    (p4 : ∀ a', (k5_off4 j) a' + S16.size a' ≤ S25600.size a') (h : Lanes d L a b ga gb j.val) :
    Lanes d L a b ga (b.view.writes (Elt F) gb [⟨Rect.unit (s := S25600) (k5_off4 j) S16.size p4,
      k5_pay1 (a.view.readAt (Elt F) (Rect.unit (s := S8x3200) (k5_off3 j) S1x16.size p3).toLoadRect ga)⟩]) (j.val + 1) :=
  lanes_step_core d L a b ga gb j.val (k5_off3_eq j) (k5_off4_eq j) p3 p4 h

theorem lanes_step' (a : Memref sig .scVector .vmem S8x3200 .f32) (b : Memref sig .scVector .vmem S25600 .f32)
    (ga : Buf (Elt F) (a.view.loc (thr d L))) (gb : Buf (Elt F) (b.view.loc (thr d L)))
    (j : Fin k5_t3_loop.trips) (p3 : ∀ a', (k5_off8 j) a' + S1x16.size a' ≤ S8x3200.size a')
    (p4 : ∀ a', (k5_off9 j) a' + S16.size a' ≤ S25600.size a') (h : Lanes d L a b ga gb j.val) :
    Lanes d L a b ga (b.view.writes (Elt F) gb [⟨Rect.unit (s := S25600) (k5_off9 j) S16.size p4,
      k5_pay2 (a.view.readAt (Elt F) (Rect.unit (s := S8x3200) (k5_off8 j) S1x16.size p3).toLoadRect ga)⟩]) (j.val + 1) :=
  lanes_step_core d L a b ga gb j.val (k5_off8_eq j) (k5_off9_eq j) p3 p4 h

/-- Position `y` of the write-out window of the flat staging array is its element `y 0`. -/
theorem stg_emb (y : S3200.Idx) (hy : (y 0).val < 25600) :
    (Rect.unit (s := S25600) ![0] S3200.size inb_S25600_S3200_0).emb y = ix1 (⟨(y 0).val, hy⟩ : Fin 25600) := by
  funext a'; apply Fin.ext
  match a' with
  | ⟨0, _⟩ => show 0 + 1 * (y 0).val = (y 0).val; omega

/-- Position `(0, t)` of row 0 of the staging array is its element `(0, t)`. -/
theorem row_emb (t : Fin 3200) : rowRect.emb (ix2 (0 : Fin 1) t) = ix2 (0 : Fin 8) t := by
  funext a'; apply Fin.ext
  match a' with
  | ⟨0, _⟩ => show 0 + 1 * 0 = 0; omega
  | ⟨1, _⟩ => show 0 + 1 * t.val = t.val; omega

/-- Position `(0, t)` of piece `n` of the argument row is element `(0, pos + t)` of the transposed argument;
    position `y` of piece `n` of the result is element `pos + y 0` of the result. -/
theorem in_emb (n : ℕ) (t : Fin 3200) (h : pos L n + t.val < 1600000) :
    (inM L n).view.emb (ix2 (0 : Fin 1) t) = ix2 (5 : Fin 22) (⟨pos L n + t.val, h⟩ : Fin 1600000) := by
  funext a'; apply Fin.ext
  match a' with
  | ⟨0, _⟩ => show 5 + 1 * 0 = 5; omega
  | ⟨1, _⟩ => show pos L n + 1 * t.val = pos L n + t.val; omega

theorem out_emb (n : ℕ) (y : S3200.Idx) (h : pos L n + (y 0).val < 1600000) :
    (outM L n).view.emb y = ix1 (⟨pos L n + (y 0).val, h⟩ : Fin 1600000) := by
  funext a'; apply Fin.ext
  match a' with
  | ⟨0, _⟩ => show pos L n + 1 * (y 0).val = pos L n + (y 0).val; omega

/-- Both lane-copy loops run 200 trips: 200 · 16 = 3200, the whole row. -/
theorem trips2 : k5_t2_loop.trips = 200 := by decide
theorem trips3 : k5_t3_loop.trips = 200 := by decide

/-- After all its trips a lane-copy loop has copied the whole row. -/
theorem lanes_all (a : Memref sig .scVector .vmem S8x3200 .f32) (b : Memref sig .scVector .vmem S25600 .f32)
    (ga : Buf (Elt F) (a.view.loc (thr d L))) (gb : Buf (Elt F) (b.view.loc (thr d L)))
    (h : Lanes d L a b ga gb k5_t2_loop.trips) : Lanes d L a b ga gb 200 := trips2 ▸ h
theorem lanes_all' (a : Memref sig .scVector .vmem S8x3200 .f32) (b : Memref sig .scVector .vmem S25600 .f32)
    (ga : Buf (Elt F) (a.view.loc (thr d L))) (gb : Buf (Elt F) (b.view.loc (thr d L)))
    (h : Lanes d L a b ga gb k5_t3_loop.trips) : Lanes d L a b ga gb 200 := trips3 ▸ h

/-- The write-out of a piece: the first 3200 elements of the flat staging array, which the 200 lane copies filled from
    row 0 of the staging array, which the fetch filled from piece `n` of row 5 of the transposed argument, land at
    piece `n` of the result, at the same positions of the row. -/
theorem out_written (a : Memref sig .scVector .vmem S8x3200 .f32) (b : Memref sig .scVector .vmem S25600 .f32) (n : ℕ)
    (ga : Buf (Elt F) (a.view.loc (thr d L))) (gb : Buf (Elt F) (b.view.loc (thr d L)))
    (f0 : Buf (Elt F) ((outM L n).view.loc (thr d L))) (w : S3200.Idx → Elt F .f32)
    (hw : ∀ y, w y = (stg b).view.read (Elt F) gb y) (hl : Lanes d L a b ga gb 200) (hr : InRow d L fx a ga n) (hv : valid L n) :
    ∀ i ∈ (outM L n).view.set, ((outM L n).view.writes (Elt F) f0 [⟨Rect.whole _, w⟩]) i = Cert.Spec.row 5 fx i := by
  intro i hi
  obtain ⟨y, -, rfl⟩ := Finset.mem_map.mp hi
  have hy : (y 0).val < 3200 := (y 0).isLt
  have hp : pos L n + (y 0).val < 1600000 := by unfold pos; omega
  have e1 : (outM L n).view.writes (Elt F) f0 [⟨Rect.whole _, w⟩] ((outM L n).view.emb y) = w y := by
    have h := View.read_writes_cons_emb (outM L n).view f0 (Rect.whole _) w [] y
    rw [Rect.emb_whole_apply] at h
    exact (cast_eq _ _).symm.trans ((View.read_apply _ _).symm.trans h)
  have e2 : (stg b).view.read (Elt F) gb y = b.view.read (Elt F) gb (ix1 (⟨(y 0).val, by omega⟩ : Fin 25600)) :=
    congrArg (b.view.read (Elt F) gb) (stg_emb y (by omega))
  have e3 : a.view.read (Elt F) ga (ix2 (0 : Fin 8) (⟨(y 0).val, hy⟩ : Fin 3200))
      = (inM L n).view.read (Elt F) fx (ix2 (0 : Fin 1) (⟨(y 0).val, hy⟩ : Fin 3200)) :=
    (congrArg (a.view.read (Elt F) ga) (row_emb ⟨(y 0).val, hy⟩).symm).trans (hr _)
  have e4 : (inM L n).view.read (Elt F) fx (ix2 (0 : Fin 1) (⟨(y 0).val, hy⟩ : Fin 3200))
      = fx (ix2 (5 : Fin 22) (⟨pos L n + (y 0).val, hp⟩ : Fin 1600000)) :=
    ((View.read_apply _ _).trans (cast_eq _ _)).trans (congrArg fx (in_emb L n ⟨(y 0).val, hy⟩ hp))
  have e5 : Cert.Spec.row 5 fx ((outM L n).view.emb y) = fx (ix2 (5 : Fin 22) (⟨pos L n + (y 0).val, hp⟩ : Fin 1600000)) :=
    (congrArg (Cert.Spec.row 5 fx) (out_emb L n y hp)).trans (Cert.Spec.row_apply 5 fx _)
  exact e1.trans ((hw y).trans (e2.trans ((hl _ hy (by omega)).trans (e3.trans (e4.trans e5.symm)))))

end Cert.Proof.TileBVal5

end
-- ==== Proof.TileB5.lean ====
/-
  One vector subcore's task of copy kernel 5 (counting from 0), run symbolically: the two fetch slots and two write-out slots
  between trips of the main loop (what each transfer in flight will hand back, and what the staging buffers hold), the
  invariant of the main loop and of the two lane-copy loops, and the task's run — from the tile's pieces of row 5 of
  the transposed argument and of the result to the same pieces with the result holding the row's elements.
-/
import proofs.«206869_g37898791420194_cont_8to1_b_558_20_alg».proof.Proof.TileB5Defs
import proofs.«206869_g37898791420194_cont_8to1_b_558_20_alg».proof.Proof.TileBVal5
noncomputable section

namespace Cert.Proof.TileB5

open Cert.Kernel Cert.Kernel.Gen Cert.Proof.TileBVal5
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 22) (Elt F) ℕ UU ℕ
local notation "xtW" => (Memref.whole Cert.Kernel.main_v0_scv : Memref Cert.Kernel.sig Kind.scVector Space.hbm Cert.Kernel.S22x1600000 EltTy.f32)
local notation "oW" => (Memref.whole Cert.Kernel.main_v6_scv : Memref Cert.Kernel.sig Kind.scVector Space.hbm Cert.Kernel.S1600000 EltTy.f32)
local notation "a4" => (Memref.whole Cert.Kernel.cc5_scratch0 : Memref Cert.Kernel.sig Kind.scVector Space.vmem Cert.Kernel.S8x3200 EltTy.f32)
local notation "a5" => (Memref.whole Cert.Kernel.cc5_scratch1 : Memref Cert.Kernel.sig Kind.scVector Space.vmem Cert.Kernel.S8x3200 EltTy.f32)
local notation "a6" => (Memref.whole Cert.Kernel.cc5_scratch2 : Memref Cert.Kernel.sig Kind.scVector Space.vmem Cert.Kernel.S25600 EltTy.f32)
local notation "a7" => (Memref.whole Cert.Kernel.cc5_scratch3 : Memref Cert.Kernel.sig Kind.scVector Space.vmem Cert.Kernel.S25600 EltTy.f32)

variable [FloatOps F]

section Tile

variable (d : Dev nD) (L : grid5.Coords)
variable (O : CellTallies nD τ sig (HIx 22)) (W : Waits sig (HIx 22))
variable (fx : Buf (Elt F) ((xtW).view.loc (thr d L)))

/-- Piece `n` of the result at its final contents. -/
abbrev oqPiece (n : ℕ) : sProp 𝕄 := (outM L n).view.loc (thr d L) ↦[(outM L n).view.set]{fullShare} (Cert.Spec.row 5 fx)
theorem oQ_pos {n : ℕ} (v : valid L n) : oQ d L fx n = oqPiece d L fx n := if_pos v
theorem oQ_neg {n : ℕ} (v : ¬ valid L n) : oQ d L fx n = iprop(emp) := if_neg v

/-- A fetch slot, remembering that the staging row it will hand back holds the piece. -/
def inSlotV (a : Memref sig .scVector .vmem S8x3200 .f32) (sm : DmaSem sig) (n : ℕ) : sProp 𝕄 :=
  if valid L n then
    iprop(∃ g, ⌜InRow d L fx a g n⌝ ∗ Transfers.Flight countersEmb (thr d L) (SemLoc.dma sm) (default : HIx 22) NN
      iprop((a.view.loc (thr d L) ↦{fullShare} g) ∗ xtPiece d L fx n))
  else iprop((∃ g, a.view.loc (thr d L) ↦{fullShare} g) ∗ semVal (thr d L, SemLoc.dma sm) 0)

/-- A write-out slot: the piece in flight will come back holding the row's elements. -/
def outSlotV (a : Memref sig .scVector .vmem S25600 .f32) (sm : DmaSem sig) (m : ℕ) : sProp 𝕄 :=
  if 2 ≤ m ∧ valid L (m - 2) then
    iprop(∃ g, Transfers.Flight countersEmb (thr d L) (SemLoc.dma sm) (default : HIx 22) NN
        iprop(oqPiece d L fx (m - 2) ∗ ((stg a).view.loc (thr d L) ↦[(stg a).view.set]{fullShare} g))
      ∗ (a.view.loc (thr d L) ↦[Finset.univ \ (stg a).view.set]{fullShare} g))
  else iprop((∃ g, a.view.loc (thr d L) ↦{fullShare} g) ∗ semVal (thr d L, SemLoc.dma sm) 0)

theorem inSlotV_pos {a : Memref sig .scVector .vmem S8x3200 .f32} {sm : DmaSem sig} {n : ℕ} (v : valid L n) :
    inSlotV d L fx a sm n = iprop(∃ g, ⌜InRow d L fx a g n⌝ ∗ Transfers.Flight countersEmb (thr d L) (SemLoc.dma sm) (default : HIx 22) NN
      iprop((a.view.loc (thr d L) ↦{fullShare} g) ∗ xtPiece d L fx n)) := by unfold inSlotV; rw [if_pos v]
theorem inSlotV_neg {a : Memref sig .scVector .vmem S8x3200 .f32} {sm : DmaSem sig} {n : ℕ} (v : ¬ valid L n) :
    inSlotV d L fx a sm n = iprop((∃ g, a.view.loc (thr d L) ↦{fullShare} g) ∗ semVal (thr d L, SemLoc.dma sm) 0) := by
  unfold inSlotV; rw [if_neg v]
theorem outSlotV_pos {a : Memref sig .scVector .vmem S25600 .f32} {sm : DmaSem sig} {m : ℕ} (h : 2 ≤ m ∧ valid L (m - 2)) :
    outSlotV d L fx a sm m = iprop(∃ g, Transfers.Flight countersEmb (thr d L) (SemLoc.dma sm) (default : HIx 22) NN
        iprop(oqPiece d L fx (m - 2) ∗ ((stg a).view.loc (thr d L) ↦[(stg a).view.set]{fullShare} g))
      ∗ (a.view.loc (thr d L) ↦[Finset.univ \ (stg a).view.set]{fullShare} g)) := by unfold outSlotV; rw [if_pos h]
theorem outSlotV_neg {a : Memref sig .scVector .vmem S25600 .f32} {sm : DmaSem sig} {m : ℕ} (h : ¬ (2 ≤ m ∧ valid L (m - 2))) :
    outSlotV d L fx a sm m = iprop((∃ g, a.view.loc (thr d L) ↦{fullShare} g) ∗ semVal (thr d L, SemLoc.dma sm) 0) := by
  unfold outSlotV; rw [if_neg h]

/-- A fetch just issued: the staging row will hold what the transfer reads, which is the piece. -/
theorem fl_inV {off : Fin 2 → ℕ} {n : ℕ} (h : off = ![5, pos L n]) (p : ∀ a, off a + S1x3200.size a ≤ S22x1600000.size a) (v : valid L n)
    (a : Memref sig .scVector .vmem S8x3200 .f32) (sm : DmaSem sig) :
    (iprop(∃ (gold : Buf (Elt F) (a.view.loc (thr d L))) (w : S1x3200.Idx → Elt F .f32),
        ⌜∀ y, w y = ((xtW).slice (Rect.unit (s := S22x1600000) off S1x3200.size p) (fun _ => rfl)).view.read (Elt F) fx y⌝
        ∗ Transfers.Flight countersEmb (thr d L) (SemLoc.dma sm) (default : HIx 22) NN
          iprop((a.view.loc (thr d L) ↦{fullShare} a.view.writes (Elt F) gold [⟨rowRect, w⟩])
            ∗ (((xtW).slice (Rect.unit (s := S22x1600000) off S1x3200.size p) (fun _ => rfl)).view.loc (thr d L)
                ↦[((xtW).slice (Rect.unit (s := S22x1600000) off S1x3200.size p) (fun _ => rfl)).view.set]{fullShare} fx))) : sProp 𝕄)
      ⊢ inSlotV d L fx a sm n := by
  subst h
  rw [inSlotV_pos d L fx v]
  iintro ⟨%gold, %w, %hw, H⟩
  iexists _
  isplitr
  · ipureintro; exact inRow_fetch d L fx a gold w n hw
  · iexact H

set_option maxHeartbeats 4000000 in
/-- A write-out just issued from a flat staging buffer whose first 3200 elements are the staging row, itself piece
    `n` of the argument row: the piece of the result will hold the row's elements. -/
theorem fl_outV {off : Fin 1 → ℕ} {n : ℕ} (h : off = ![pos L n]) (p : ∀ a, off a + S3200.size a ≤ S1600000.size a) (v : valid L n)
    (ar : Memref sig .scVector .vmem S8x3200 .f32) (a : Memref sig .scVector .vmem S25600 .f32) (sm : DmaSem sig)
    (f0 : Buf (Elt F) ((oW).view.loc (thr d L))) (ga : Buf (Elt F) (ar.view.loc (thr d L))) (gb : Buf (Elt F) (a.view.loc (thr d L)))
    (hl : Lanes d L ar a ga gb 200) (hr : InRow d L fx ar ga n) :
    (iprop(∃ (w : S3200.Idx → Elt F .f32),
        ⌜∀ y, w y = (stg a).view.read (Elt F) gb y⌝
        ∗ Transfers.Flight countersEmb (thr d L) (SemLoc.dma sm) (default : HIx 22) NN
          iprop((((oW).slice (Rect.unit (s := S1600000) off S3200.size p) (fun _ => rfl)).view.loc (thr d L)
                ↦[((oW).slice (Rect.unit (s := S1600000) off S3200.size p) (fun _ => rfl)).view.set]{fullShare}
                  (((oW).slice (Rect.unit (s := S1600000) off S3200.size p) (fun _ => rfl)).view.writes (Elt F) f0 [⟨Rect.whole _, w⟩]))
            ∗ ((stg a).view.loc (thr d L) ↦[(stg a).view.set]{fullShare} gb))
        ∗ (a.view.loc (thr d L) ↦[Finset.univ \ (stg a).view.set]{fullShare} gb)) : sProp 𝕄)
      ⊢ outSlotV d L fx a sm (n + 2) := by
  subst h
  rw [outSlotV_pos d L fx (m := n + 2) ⟨by omega, by simpa using v⟩]
  iintro ⟨%w, %hw, H, R⟩
  have hD : (iprop(((outM L n).view.loc (thr d L) ↦[(outM L n).view.set]{fullShare} ((outM L n).view.writes (Elt F) f0 [⟨Rect.whole _, w⟩]))
          ∗ ((stg a).view.loc (thr d L) ↦[(stg a).view.set]{fullShare} gb)) : sProp 𝕄)
      ⊢ iprop(oqPiece d L fx (n + 2 - 2) ∗ ((stg a).view.loc (thr d L) ↦[(stg a).view.set]{fullShare} gb)) := by
    rw [Nat.add_sub_cancel]
    have e : (((outM L n).view.loc (thr d L) ↦[(outM L n).view.set]{fullShare} ((outM L n).view.writes (Elt F) f0 [⟨Rect.whole _, w⟩])) : sProp 𝕄)
        = oqPiece d L fx n := pointsTo_congr (out_written d L fx ar a n ga gb f0 w hw hl hr v)
    iintro ⟨H1, H2⟩
    isplitl [H1]
    · iapply (Entails.of_eq e); iexact H1
    · iexact H2
  iexists gb
  isplitl [H]
  · iapply (Transfers.Flight_mono countersEmb (thr d L) hD); iexact H
  · iexact R

/-- The result pieces outside the slots before trip `t`: those already written hold the row, the others some contents. -/
def oMix (t n : ℕ) : sProp 𝕄 := if n + 2 < 2 * t then oQ d L fx n else oP (F := F) d L n
theorem oMix_lt {t n : ℕ} (h : n + 2 < 2 * t) : oMix d L fx t n = oQ d L fx n := if_pos h
theorem oMix_ge {t n : ℕ} (h : ¬ n + 2 < 2 * t) : oMix d L fx t n = oP (F := F) d L n := if_neg h
theorem oMix_core (k : ℕ) : bigSep (oCore k) (oMix d L fx k) = bigSep (oCore k) (oMix d L fx (k + 1)) :=
  bigSep_congr fun n hn => by
    have hn' : n + 2 ≠ 2 * k ∧ n + 2 ≠ 2 * k + 1 ∧ n ≠ 2 * k ∧ n ≠ 2 * k + 1 := by
      simp only [oCore, Finset.mem_filter, Finset.mem_range] at hn; exact hn.2
    by_cases h : n + 2 < 2 * k
    · rw [oMix_lt d L fx h, oMix_lt d L fx (by omega)]
    · rw [oMix_ge d L fx h, oMix_ge d L fx (by omega)]
theorem oMix_zero : bigSep (oSet 0) (oMix d L fx 0) = bigSep (Finset.range 18) (oP (F := F) d L) := by
  rw [oSet_zero]; exact bigSep_congr fun n _ => oMix_ge d L fx (by omega)
theorem oMix_end : bigSep (oSet 8) (oMix d L fx 8) = bigSep (oSet 8) (oQ d L fx) :=
  bigSep_congr fun n hn => by
    have hn' : n < 18 ∧ n + 2 ≠ 16 ∧ n + 2 ≠ 17 := by simpa only [oSet, Finset.mem_filter, Finset.mem_range] using hn
    by_cases h : n + 2 < 2 * 8
    · exact oMix_lt d L fx h
    · rw [oMix_ge d L fx h, oP_neg (F := F) d L (by unfold valid; omega), oQ_neg d L fx (by unfold valid; omega)]

/-- The lane-copy loops: before trip `j` the first 16·j elements of the flat staging buffer are the staging row's. -/
def laneV0 (g4 : Buf (Elt F) ((a4).view.loc (thr d L))) (j : ℕ) (_ : PUnit) : sProp 𝕄 :=
  iprop(((a4).view.loc (thr d L) ↦{fullShare} g4) ∗ (∃ g, ((a6).view.loc (thr d L) ↦{fullShare} g) ∗ ⌜Lanes d L a4 a6 g4 g j⌝))
def laneV1 (g5 : Buf (Elt F) ((a5).view.loc (thr d L))) (j : ℕ) (_ : PUnit) : sProp 𝕄 :=
  iprop(((a5).view.loc (thr d L) ↦{fullShare} g5) ∗ (∃ g, ((a7).view.loc (thr d L) ↦{fullShare} g) ∗ ⌜Lanes d L a5 a7 g5 g j⌝))

def invV (t : ℕ) (_ : PUnit) : sProp 𝕄 :=
  iprop(Transfers.MayWaits (thr d L) (none : HIx 22) O
    ∗ (∃ W', ⌜∀ p ∈ W', p ∈ W ∨ p.2 = none⌝ ∗ owes (thr d L) O W')
    ∗ bigSep (xSet t) (xP d L fx) ∗ bigSep (oSet t) (oMix d L fx t)
    ∗ inSlotV d L fx a4 cc5_scratch4.sem (2 * t) ∗ outSlotV d L fx a6 cc5_scratch6.sem (2 * t)
    ∗ inSlotV d L fx a5 cc5_scratch5.sem (2 * t + 1) ∗ outSlotV d L fx a7 cc5_scratch7.sem (2 * t + 1))

/-- After the last trip nothing of the argument row is in a slot: the tile holds all its pieces. -/
theorem xRange_end : bigSep (xSet 8) (xP d L fx) ⊢ bigSep (Finset.range 18) (xP d L fx) := by
  rw [two_out (s := Finset.range 18) (a := 16) (b := 17) (by decide) (by decide) (by decide),
    show ((Finset.range 18).erase 16).erase 17 = xSet 8 by decide]
  iintro H
  isplitr; · iapply (Entails.of_eq (xP_neg d L fx (n := 16) (by unfold valid; omega)).symm); iempintro
  isplitr; · iapply (Entails.of_eq (xP_neg d L fx (n := 17) (by unfold valid; omega)).symm); iempintro
  iexact H
omit [FloatOps F] in
theorem oRange_end (Φ : ℕ → sProp 𝕄) : bigSep (Finset.range 18) Φ = iprop(Φ 14 ∗ Φ 15 ∗ bigSep (oSet 8) Φ) := by
  rw [two_out (s := Finset.range 18) (a := 14) (b := 15) (by decide) (by decide) (by decide),
    show ((Finset.range 18).erase 14).erase 15 = oSet 8 by decide]

/-- What the run starts from and ends with, beside an untouched rest `R`. -/
def runPre (R : sProp 𝕄) : sProp 𝕄 :=
    iprop(Transfers.MayWaits (thr d L) (none : HIx 22) O ∗ owes (thr d L) O W
        ∗ bigSep (Finset.range 18) (xP d L fx) ∗ bigSep (Finset.range 18) (oP (F := F) d L)
        ∗ (∃ g, (a4).view.loc (thr d L) ↦{fullShare} g) ∗ (∃ g, (a5).view.loc (thr d L) ↦{fullShare} g)
        ∗ (∃ g, (a6).view.loc (thr d L) ↦{fullShare} g) ∗ (∃ g, (a7).view.loc (thr d L) ↦{fullShare} g)
        ∗ semVal (thr d L, SemLoc.dma cc5_scratch4.sem) 0 ∗ semVal (thr d L, SemLoc.dma cc5_scratch5.sem) 0
        ∗ semVal (thr d L, SemLoc.dma cc5_scratch6.sem) 0 ∗ semVal (thr d L, SemLoc.dma cc5_scratch7.sem) 0 ∗ R)
def runPost (R : sProp 𝕄) : sProp 𝕄 :=
    iprop(bigSep (Finset.range 18) (xP d L fx) ∗ bigSep (Finset.range 18) (oQ d L fx)
            ∗ (∃ g, (a4).view.loc (thr d L) ↦{fullShare} g) ∗ (∃ g, (a5).view.loc (thr d L) ↦{fullShare} g)
            ∗ (∃ g, (a6).view.loc (thr d L) ↦{fullShare} g) ∗ (∃ g, (a7).view.loc (thr d L) ↦{fullShare} g)
            ∗ semVal (thr d L, SemLoc.dma cc5_scratch4.sem) 0 ∗ semVal (thr d L, SemLoc.dma cc5_scratch5.sem) 0
            ∗ semVal (thr d L, SemLoc.dma cc5_scratch6.sem) 0 ∗ semVal (thr d L, SemLoc.dma cc5_scratch7.sem) 0
            ∗ (∃ W', ⌜∀ p ∈ W', p ∈ W ∨ p.2 = none⌝ ∗ owes (thr d L) O W') ∗ R)

set_option maxHeartbeats 16000000 in
/-- The task's run: from its pieces of the argument row and of the result, the four staging buffers and the four
    semaphores at zero, to the same with every piece of the result holding the row's elements. -/
theorem tile_run (R : sProp 𝕄) :
    runPre d L O W fx R
      ⊢ wp frame (wpE (defs₀ (F := F)) 𝒱₀ (thr d L) none) Set.univ
          (cc5_sc_group L xtW (Memref.isWhole_whole _) oW (Memref.isWhole_whole _) a4 (Memref.isWhole_whole _) a5 (Memref.isWhole_whole _)
            a6 (Memref.isWhole_whole _) a7 (Memref.isWhole_whole _) cc5_scratch4 cc5_scratch5 cc5_scratch6 cc5_scratch7)
          fun _ => runPost d L O W fx R := by
  unfold runPre runPost
  have v0 : valid L 0 := Or.inl (by omega)
  have v1 : valid L 1 := Or.inl (by omega)
  have k5_h7 : k5_cond7 L = 1#1 := cond7_iff L
  iintro ⟨#Hmw, HO, HX, HOut, ⟨%g4, H4⟩, ⟨%g5, H5⟩, ⟨%g6, H6⟩, ⟨%g7, H7⟩, Hs8, Hs9, Hs10, Hs11, HR⟩
  ihave HX := (Entails.of_eq (xRange_split d L fx v0 v1)) $$ HX
  icases HX with ⟨X0, X1, HX⟩
  ihave X0 := (Entails.of_eq (in_congr d L (off_in0 L v0).symm (in_inb L _) (k5_off1_inb L 0) fx)) $$ X0
  ihave X1 := (Entails.of_eq (in_congr d L (off_in1 L v1).symm (in_inb L _) (k5_off1_inb L 1) fx)) $$ X1
  sl_unfold [cc5_sc_group]
  sl_exec
  ihave S8 := (fl_inV d L fx (off_in0 L v0) (k5_off1_inb L 0) v0 a4 cc5_scratch4.sem) $$ [Hs8]
  · iexists _, _
    isplitr
    rotate_left
    · iexact Hs8
    ipureintro; intro y; rfl
  ihave S9 := (fl_inV d L fx (off_in1 L v1) (k5_off1_inb L 1) v1 a5 cc5_scratch5.sem) $$ [Hs9]
  · iexists _, _
    isplitr
    rotate_left
    · iexact Hs9
    ipureintro; intro y; rfl
  sl_for (invV d L O W fx) $$ [HO HX HOut S8 S9 H6 H7 Hs10 Hs11]
  case region =>
    intro (k : Fin k5_t1_loop.trips) acc
    have hk : k.val < 8 := Nat.lt_of_lt_of_eq k.isLt trips1
    unfold invV
    iintro ⟨#Hmw, ⟨%W', %hW', HO⟩, HX, HOut, S8, S10, S9, S11⟩
    by_cases hk1 : 1 ≤ k.val
    · by_cases v3 : valid L (2 * k.val + 3)
      · -- the generic trip: both drains, both pieces worked, both next fetches issued
        have hk6 : k.val ≤ 6 := by unfold valid at v3; omega
        have k5_h1 : k5_cond1 k = 1#1 := (cond1_iff k).mpr (by omega)
        have k5_h2 : k5_cond2 L k = 1#1 := cond2_iff L k
        have k5_h3 : k5_cond3 L k = 1#1 := (cond3_iff L k).mpr (by omega)
        have k5_h4 : k5_cond4 k = 1#1 := (cond4_iff k).mpr (by omega)
        have k5_h5 : k5_cond5 L k = 1#1 := (cond5_iff L k).mpr (by first | (unfold valid big at *; omega) | (unfold big at *; omega) | omega)
        have k5_h6 : k5_cond6 L k = 1#1 := (cond6_iff L k).mpr (by first | (unfold valid big at *; omega) | (unfold big at *; omega) | omega)
        have v0 : valid L (2 * k.val) := by unfold valid big at *; omega
        have v1 : valid L (2 * k.val + 1) := by unfold valid big at *; omega
        have v2 : valid L (2 * k.val + 2) := by unfold valid big at *; omega
        have v3' : valid L (2 * k.val + 3) := by unfold valid big at *; omega
        have hm0 : 2 ≤ 2 * k.val ∧ valid L (2 * k.val - 2) := ⟨by omega, by unfold valid big at *; omega⟩
        have hm1 : 2 ≤ 2 * k.val + 1 ∧ valid L (2 * k.val + 1 - 2) := ⟨by omega, by unfold valid big at *; omega⟩
        ihave S8 := (Entails.of_eq (inSlotV_pos d L fx v0)) $$ S8
        icases S8 with ⟨%g4, %hin4, F8⟩
        ihave S9 := (Entails.of_eq (inSlotV_pos d L fx v1)) $$ S9
        icases S9 with ⟨%g5, %hin5, F9⟩
        ihave S10 := (Entails.of_eq (outSlotV_pos d L fx hm0)) $$ S10
        icases S10 with ⟨%g6, F10, R6⟩
        ihave S11 := (Entails.of_eq (outSlotV_pos d L fx hm1)) $$ S11
        icases S11 with ⟨%g7, F11, R7⟩
        ihave HX := (Entails.of_eq (xSet_out (xP d L fx) k.val hk)) $$ HX
        icases HX with ⟨X2, X3, HX⟩
        ihave X2 := (Entails.of_eq (xP_pos d L fx v2)) $$ X2
        ihave X2 := (Entails.of_eq (in_congr d L (off_6 L k v2).symm (in_inb L _) (k5_off6_inb L k k5_h3) fx)) $$ X2
        ihave X3 := (Entails.of_eq (xP_pos d L fx v3')) $$ X3
        ihave X3 := (Entails.of_eq (in_congr d L (off_11 L k v3').symm (in_inb L _) (k5_off11_inb L k k5_h6) fx)) $$ X3
        ihave HOut := (Entails.of_eq (oSet_out (oMix d L fx k.val) k.val hk)) $$ HOut
        icases HOut with ⟨Y0, Y1, HOut⟩
        ihave Y0 := (Entails.of_eq ((oMix_ge d L fx (t := k.val) (n := 2 * k.val) (by omega)).trans (oP_pos (F := F) d L v0))) $$ Y0
        icases Y0 with ⟨%f0, Y0⟩
        ihave Y0 := (Entails.of_eq (out_congr d L (off_5 L k v0).symm (out_inb L _) (k5_off5_inb L k k5_h2) f0)) $$ Y0
        ihave Y1 := (Entails.of_eq ((oMix_ge d L fx (t := k.val) (n := 2 * k.val + 1) (by omega)).trans (oP_pos (F := F) d L v1))) $$ Y1
        icases Y1 with ⟨%f1, Y1⟩
        ihave Y1 := (Entails.of_eq (out_congr d L (off_10 L k v1).symm (out_inb L _) (k5_off10_inb L k k5_h5) f1)) $$ Y1
        sl_exec
        sl_for (laneV0 d L g4) $$ [F8_dst R6]
        case region =>
          intro (j : Fin k5_t2_loop.trips) _
          unfold laneV0
          iintro ⟨HA, %g, HB, %hl⟩
          sl_exec
          sl_step
          isplitl [HA]; · iexact HA
          iexists _; isplitl [HB]; · iexact HB
          ipureintro; exact lanes_step d L a4 a6 g4 g j _ _ hl
        · unfold laneV0
          isplitl [F8_dst]; · iexact F8_dst
          iexists _; isplitl [R6]; · iexact R6
          ipureintro; exact lanes_zero d L a4 a6 g4 _
        iintro %_ HI
        unfold laneV0
        icases HI with ⟨H4, %g6', H6, %hl6⟩
        have hl6 : Lanes d L a4 a6 g4 g6' 200 := Eq.mp (congrArg (Lanes d L a4 a6 g4 g6') trips2) hl6
        sl_exec
        sl_for (laneV1 d L g5) $$ [F9_dst R7]
        case region =>
          intro (j : Fin k5_t3_loop.trips) _
          unfold laneV1
          iintro ⟨HA, %g, HB, %hl⟩
          sl_exec
          sl_step
          isplitl [HA]; · iexact HA
          iexists _; isplitl [HB]; · iexact HB
          ipureintro; exact lanes_step' d L a5 a7 g5 g j _ _ hl
        · unfold laneV1
          isplitl [F9_dst]; · iexact F9_dst
          iexists _; isplitl [R7]; · iexact R7
          ipureintro; exact lanes_zero d L a5 a7 g5 _
        iintro %_ HI
        unfold laneV1
        icases HI with ⟨H5, %g7', H7, %hl7⟩
        have hl7 : Lanes d L a5 a7 g5 g7' 200 := Eq.mp (congrArg (Lanes d L a5 a7 g5 g7') trips3) hl7
        sl_exec
        sl_step
        isplitr; · iexact Hmw
        isplitl [HO]
        · iexists _; isplitr
          rotate_left
          · iexact HO
          ipureintro; intro p hp
          rcases Finset.mem_insert.mp hp with rfl | hp
          · exact .inr rfl
          rcases Finset.mem_insert.mp hp with rfl | hp
          · exact .inr rfl
          rcases Finset.mem_insert.mp hp with rfl | hp
          · exact .inr rfl
          rcases Finset.mem_insert.mp hp with rfl | hp
          · exact .inr rfl
          exact hW' p hp
        isplitl [HX F8_src F9_src]
        · iapply (Entails.of_eq (xSet_in (xP d L fx) k.val hk).symm)
          isplitl [F8_src]; · iapply (Entails.of_eq (xP_pos d L fx v0).symm); iexact F8_src
          isplitl [F9_src]; · iapply (Entails.of_eq (xP_pos d L fx v1).symm); iexact F9_src
          iexact HX
        isplitl [HOut F10_dst F11_dst]
        · iapply (Entails.of_eq (oSet_in (oMix d L fx (k.val + 1)) k.val hk (by omega)).symm)
          isplitl [F10_dst]; · iapply (Entails.of_eq ((oMix_lt d L fx (t := k.val + 1) (n := 2 * k.val - 2) (by omega)).trans (oQ_pos d L fx hm0.2)).symm); iexact F10_dst
          isplitl [F11_dst]
          · iapply (Entails.of_eq ((oMix_lt d L fx (t := k.val + 1) (n := 2 * k.val - 1) (by omega)).trans (oQ_pos d L fx (n := 2 * k.val - 1) (by have := hm1.2; rwa [show 2 * k.val + 1 - 2 = 2 * k.val - 1 by omega] at this))).symm)
            iapply (Entails.of_eq (congrArg (oqPiece d L fx) (show 2 * k.val + 1 - 2 = 2 * k.val - 1 by omega))); iexact F11_dst
          iapply (Entails.of_eq (oMix_core d L fx k.val)); iexact HOut
        isplitl [F8]
        · iapply (Entails.of_eq (congrArg (inSlotV d L fx a4 cc5_scratch4.sem) (show 2 * k.val + 2 = 2 * (k.val + 1) by ring)))
          iapply (fl_inV d L fx (off_6 L k v2) (k5_off6_inb L k k5_h3) v2 a4 cc5_scratch4.sem); iexists _, _
          isplitr
          rotate_left
          · iexact F8
          ipureintro; intro y; rfl
        isplitl [F10 H6]
        · iapply (Entails.of_eq (congrArg (outSlotV d L fx a6 cc5_scratch6.sem) (show 2 * k.val + 2 = 2 * (k.val + 1) by ring)))
          iapply (fl_outV d L fx (off_5 L k v0) (k5_off5_inb L k k5_h2) v0 a4 a6 cc5_scratch6.sem f0 g4 g6' hl6 hin4); iexists _
          isplitr
          rotate_left
          · isplitl [F10]; · iexact F10
            iexact H6
          ipureintro; intro y; rfl
        isplitl [F9]
        · iapply (Entails.of_eq (congrArg (inSlotV d L fx a5 cc5_scratch5.sem) (show 2 * k.val + 3 = 2 * (k.val + 1) + 1 by ring)))
          iapply (fl_inV d L fx (off_11 L k v3') (k5_off11_inb L k k5_h6) v3' a5 cc5_scratch5.sem); iexists _, _
          isplitr
          rotate_left
          · iexact F9
          ipureintro; intro y; rfl
        · iapply (Entails.of_eq (congrArg (outSlotV d L fx a7 cc5_scratch7.sem) (show 2 * k.val + 1 + 2 = 2 * (k.val + 1) + 1 by ring)))
          iapply (fl_outV d L fx (off_10 L k v1) (k5_off10_inb L k k5_h5) v1 a5 a7 cc5_scratch7.sem f1 g5 g7' hl7 hin5); iexists _
          isplitr
          rotate_left
          · isplitl [F11]; · iexact F11
            iexact H7
          ipureintro; intro y; rfl
      · by_cases h6 : k.val = 6
        · have hb : ¬ big L := fun hb => v3 (Or.inr ⟨by omega, hb⟩)
          -- trip 6 of a tile with fifteen pieces: no sixteenth piece to fetch
          have k5_h1 : k5_cond1 k = 1#1 := (cond1_iff k).mpr (by omega)
          have k5_h2 : k5_cond2 L k = 1#1 := cond2_iff L k
          have k5_h3 : k5_cond3 L k = 1#1 := (cond3_iff L k).mpr (by omega)
          have k5_h4 : k5_cond4 k = 1#1 := (cond4_iff k).mpr (by omega)
          have k5_h5 : k5_cond5 L k = 1#1 := (cond5_iff L k).mpr (by first | (unfold valid big at *; omega) | (unfold big at *; omega) | omega)
          have k5_h6 : ¬ k5_cond6 L k = 1#1 := fun h => absurd ((cond6_iff L k).mp h) (by first | (unfold valid big at *; omega) | (unfold big at *; omega) | omega)
          have v0 : valid L (2 * k.val) := by unfold valid big at *; omega
          have v1 : valid L (2 * k.val + 1) := by unfold valid big at *; omega
          have v2 : valid L (2 * k.val + 2) := by unfold valid big at *; omega
          have v3' : ¬ valid L (2 * k.val + 3) := by unfold valid big at *; omega
          have hm0 : 2 ≤ 2 * k.val ∧ valid L (2 * k.val - 2) := ⟨by omega, by unfold valid big at *; omega⟩
          have hm1 : 2 ≤ 2 * k.val + 1 ∧ valid L (2 * k.val + 1 - 2) := ⟨by omega, by unfold valid big at *; omega⟩
          ihave S8 := (Entails.of_eq (inSlotV_pos d L fx v0)) $$ S8
          icases S8 with ⟨%g4, %hin4, F8⟩
          ihave S9 := (Entails.of_eq (inSlotV_pos d L fx v1)) $$ S9
          icases S9 with ⟨%g5, %hin5, F9⟩
          ihave S10 := (Entails.of_eq (outSlotV_pos d L fx hm0)) $$ S10
          icases S10 with ⟨%g6, F10, R6⟩
          ihave S11 := (Entails.of_eq (outSlotV_pos d L fx hm1)) $$ S11
          icases S11 with ⟨%g7, F11, R7⟩
          ihave HX := (Entails.of_eq (xSet_out (xP d L fx) k.val hk)) $$ HX
          icases HX with ⟨X2, -, HX⟩
          ihave X2 := (Entails.of_eq (xP_pos d L fx v2)) $$ X2
          ihave X2 := (Entails.of_eq (in_congr d L (off_6 L k v2).symm (in_inb L _) (k5_off6_inb L k k5_h3) fx)) $$ X2
          ihave HOut := (Entails.of_eq (oSet_out (oMix d L fx k.val) k.val hk)) $$ HOut
          icases HOut with ⟨Y0, Y1, HOut⟩
          ihave Y0 := (Entails.of_eq ((oMix_ge d L fx (t := k.val) (n := 2 * k.val) (by omega)).trans (oP_pos (F := F) d L v0))) $$ Y0
          icases Y0 with ⟨%f0, Y0⟩
          ihave Y0 := (Entails.of_eq (out_congr d L (off_5 L k v0).symm (out_inb L _) (k5_off5_inb L k k5_h2) f0)) $$ Y0
          ihave Y1 := (Entails.of_eq ((oMix_ge d L fx (t := k.val) (n := 2 * k.val + 1) (by omega)).trans (oP_pos (F := F) d L v1))) $$ Y1
          icases Y1 with ⟨%f1, Y1⟩
          ihave Y1 := (Entails.of_eq (out_congr d L (off_10 L k v1).symm (out_inb L _) (k5_off10_inb L k k5_h5) f1)) $$ Y1
          sl_exec
          sl_for (laneV0 d L g4) $$ [F8_dst R6]
          case region =>
            intro (j : Fin k5_t2_loop.trips) _
            unfold laneV0
            iintro ⟨HA, %g, HB, %hl⟩
            sl_exec
            sl_step
            isplitl [HA]; · iexact HA
            iexists _; isplitl [HB]; · iexact HB
            ipureintro; exact lanes_step d L a4 a6 g4 g j _ _ hl
          · unfold laneV0
            isplitl [F8_dst]; · iexact F8_dst
            iexists _; isplitl [R6]; · iexact R6
            ipureintro; exact lanes_zero d L a4 a6 g4 _
          iintro %_ HI
          unfold laneV0
          icases HI with ⟨H4, %g6', H6, %hl6⟩
          have hl6 : Lanes d L a4 a6 g4 g6' 200 := Eq.mp (congrArg (Lanes d L a4 a6 g4 g6') trips2) hl6
          sl_exec
          sl_for (laneV1 d L g5) $$ [F9_dst R7]
          case region =>
            intro (j : Fin k5_t3_loop.trips) _
            unfold laneV1
            iintro ⟨HA, %g, HB, %hl⟩
            sl_exec
            sl_step
            isplitl [HA]; · iexact HA
            iexists _; isplitl [HB]; · iexact HB
            ipureintro; exact lanes_step' d L a5 a7 g5 g j _ _ hl
          · unfold laneV1
            isplitl [F9_dst]; · iexact F9_dst
            iexists _; isplitl [R7]; · iexact R7
            ipureintro; exact lanes_zero d L a5 a7 g5 _
          iintro %_ HI
          unfold laneV1
          icases HI with ⟨H5, %g7', H7, %hl7⟩
          have hl7 : Lanes d L a5 a7 g5 g7' 200 := Eq.mp (congrArg (Lanes d L a5 a7 g5 g7') trips3) hl7
          sl_exec
          sl_step
          isplitr; · iexact Hmw
          isplitl [HO]
          · iexists _; isplitr
            rotate_left
            · iexact HO
            ipureintro; intro p hp
            rcases Finset.mem_insert.mp hp with rfl | hp
            · exact .inr rfl
            rcases Finset.mem_insert.mp hp with rfl | hp
            · exact .inr rfl
            rcases Finset.mem_insert.mp hp with rfl | hp
            · exact .inr rfl
            rcases Finset.mem_insert.mp hp with rfl | hp
            · exact .inr rfl
            exact hW' p hp
          isplitl [HX F8_src F9_src]
          · iapply (Entails.of_eq (xSet_in (xP d L fx) k.val hk).symm)
            isplitl [F8_src]; · iapply (Entails.of_eq (xP_pos d L fx v0).symm); iexact F8_src
            isplitl [F9_src]; · iapply (Entails.of_eq (xP_pos d L fx v1).symm); iexact F9_src
            iexact HX
          isplitl [HOut F10_dst F11_dst]
          · iapply (Entails.of_eq (oSet_in (oMix d L fx (k.val + 1)) k.val hk (by omega)).symm)
            isplitl [F10_dst]; · iapply (Entails.of_eq ((oMix_lt d L fx (t := k.val + 1) (n := 2 * k.val - 2) (by omega)).trans (oQ_pos d L fx hm0.2)).symm); iexact F10_dst
            isplitl [F11_dst]
            · iapply (Entails.of_eq ((oMix_lt d L fx (t := k.val + 1) (n := 2 * k.val - 1) (by omega)).trans (oQ_pos d L fx (n := 2 * k.val - 1) (by have := hm1.2; rwa [show 2 * k.val + 1 - 2 = 2 * k.val - 1 by omega] at this))).symm)
              iapply (Entails.of_eq (congrArg (oqPiece d L fx) (show 2 * k.val + 1 - 2 = 2 * k.val - 1 by omega))); iexact F11_dst
            iapply (Entails.of_eq (oMix_core d L fx k.val)); iexact HOut
          isplitl [F8]
          · iapply (Entails.of_eq (congrArg (inSlotV d L fx a4 cc5_scratch4.sem) (show 2 * k.val + 2 = 2 * (k.val + 1) by ring)))
            iapply (fl_inV d L fx (off_6 L k v2) (k5_off6_inb L k k5_h3) v2 a4 cc5_scratch4.sem); iexists _, _
            isplitr
            rotate_left
            · iexact F8
            ipureintro; intro y; rfl
          isplitl [F10 H6]
          · iapply (Entails.of_eq (congrArg (outSlotV d L fx a6 cc5_scratch6.sem) (show 2 * k.val + 2 = 2 * (k.val + 1) by ring)))
            iapply (fl_outV d L fx (off_5 L k v0) (k5_off5_inb L k k5_h2) v0 a4 a6 cc5_scratch6.sem f0 g4 g6' hl6 hin4); iexists _
            isplitr
            rotate_left
            · isplitl [F10]; · iexact F10
              iexact H6
            ipureintro; intro y; rfl
          isplitl [H5 F9]
          · iapply (Entails.of_eq (congrArg (inSlotV d L fx a5 cc5_scratch5.sem) (show 2 * k.val + 3 = 2 * (k.val + 1) + 1 by ring)))
            iapply (Entails.of_eq (inSlotV_neg d L fx v3').symm)
            isplitl [H5]; · iexists _; iexact H5
            iexact F9
          · iapply (Entails.of_eq (congrArg (outSlotV d L fx a7 cc5_scratch7.sem) (show 2 * k.val + 1 + 2 = 2 * (k.val + 1) + 1 by ring)))
            iapply (fl_outV d L fx (off_10 L k v1) (k5_off10_inb L k k5_h5) v1 a5 a7 cc5_scratch7.sem f1 g5 g7' hl7 hin5); iexists _
            isplitr
            rotate_left
            · isplitl [F11]; · iexact F11
              iexact H7
            ipureintro; intro y; rfl
        · have h7 : k.val = 7 := by unfold valid at v3; omega
          by_cases hb : big L
          · -- the last trip of a tile with sixteen pieces: nothing more to fetch
            have k5_h1 : k5_cond1 k = 1#1 := (cond1_iff k).mpr (by omega)
            have k5_h2 : k5_cond2 L k = 1#1 := cond2_iff L k
            have k5_h3 : ¬ k5_cond3 L k = 1#1 := fun h => absurd ((cond3_iff L k).mp h) (by omega)
            have k5_h4 : k5_cond4 k = 1#1 := (cond4_iff k).mpr (by omega)
            have k5_h5 : k5_cond5 L k = 1#1 := (cond5_iff L k).mpr (by first | (unfold valid big at *; omega) | (unfold big at *; omega) | omega)
            have k5_h6 : ¬ k5_cond6 L k = 1#1 := fun h => absurd ((cond6_iff L k).mp h) (by first | (unfold valid big at *; omega) | (unfold big at *; omega) | omega)
            have v0 : valid L (2 * k.val) := by unfold valid big at *; omega
            have v1 : valid L (2 * k.val + 1) := by unfold valid big at *; omega
            have v2 : ¬ valid L (2 * k.val + 2) := by unfold valid big at *; omega
            have v3' : ¬ valid L (2 * k.val + 3) := by unfold valid big at *; omega
            have hm0 : 2 ≤ 2 * k.val ∧ valid L (2 * k.val - 2) := ⟨by omega, by unfold valid big at *; omega⟩
            have hm1 : 2 ≤ 2 * k.val + 1 ∧ valid L (2 * k.val + 1 - 2) := ⟨by omega, by unfold valid big at *; omega⟩
            ihave S8 := (Entails.of_eq (inSlotV_pos d L fx v0)) $$ S8
            icases S8 with ⟨%g4, %hin4, F8⟩
            ihave S9 := (Entails.of_eq (inSlotV_pos d L fx v1)) $$ S9
            icases S9 with ⟨%g5, %hin5, F9⟩
            ihave S10 := (Entails.of_eq (outSlotV_pos d L fx hm0)) $$ S10
            icases S10 with ⟨%g6, F10, R6⟩
            ihave S11 := (Entails.of_eq (outSlotV_pos d L fx hm1)) $$ S11
            icases S11 with ⟨%g7, F11, R7⟩
            ihave HX := (Entails.of_eq (xSet_out (xP d L fx) k.val hk)) $$ HX
            icases HX with ⟨-, -, HX⟩
            ihave HOut := (Entails.of_eq (oSet_out (oMix d L fx k.val) k.val hk)) $$ HOut
            icases HOut with ⟨Y0, Y1, HOut⟩
            ihave Y0 := (Entails.of_eq ((oMix_ge d L fx (t := k.val) (n := 2 * k.val) (by omega)).trans (oP_pos (F := F) d L v0))) $$ Y0
            icases Y0 with ⟨%f0, Y0⟩
            ihave Y0 := (Entails.of_eq (out_congr d L (off_5 L k v0).symm (out_inb L _) (k5_off5_inb L k k5_h2) f0)) $$ Y0
            ihave Y1 := (Entails.of_eq ((oMix_ge d L fx (t := k.val) (n := 2 * k.val + 1) (by omega)).trans (oP_pos (F := F) d L v1))) $$ Y1
            icases Y1 with ⟨%f1, Y1⟩
            ihave Y1 := (Entails.of_eq (out_congr d L (off_10 L k v1).symm (out_inb L _) (k5_off10_inb L k k5_h5) f1)) $$ Y1
            sl_exec
            sl_for (laneV0 d L g4) $$ [F8_dst R6]
            case region =>
              intro (j : Fin k5_t2_loop.trips) _
              unfold laneV0
              iintro ⟨HA, %g, HB, %hl⟩
              sl_exec
              sl_step
              isplitl [HA]; · iexact HA
              iexists _; isplitl [HB]; · iexact HB
              ipureintro; exact lanes_step d L a4 a6 g4 g j _ _ hl
            · unfold laneV0
              isplitl [F8_dst]; · iexact F8_dst
              iexists _; isplitl [R6]; · iexact R6
              ipureintro; exact lanes_zero d L a4 a6 g4 _
            iintro %_ HI
            unfold laneV0
            icases HI with ⟨H4, %g6', H6, %hl6⟩
            have hl6 : Lanes d L a4 a6 g4 g6' 200 := Eq.mp (congrArg (Lanes d L a4 a6 g4 g6') trips2) hl6
            sl_exec
            sl_for (laneV1 d L g5) $$ [F9_dst R7]
            case region =>
              intro (j : Fin k5_t3_loop.trips) _
              unfold laneV1
              iintro ⟨HA, %g, HB, %hl⟩
              sl_exec
              sl_step
              isplitl [HA]; · iexact HA
              iexists _; isplitl [HB]; · iexact HB
              ipureintro; exact lanes_step' d L a5 a7 g5 g j _ _ hl
            · unfold laneV1
              isplitl [F9_dst]; · iexact F9_dst
              iexists _; isplitl [R7]; · iexact R7
              ipureintro; exact lanes_zero d L a5 a7 g5 _
            iintro %_ HI
            unfold laneV1
            icases HI with ⟨H5, %g7', H7, %hl7⟩
            have hl7 : Lanes d L a5 a7 g5 g7' 200 := Eq.mp (congrArg (Lanes d L a5 a7 g5 g7') trips3) hl7
            sl_exec
            sl_step
            isplitr; · iexact Hmw
            isplitl [HO]
            · iexists _; isplitr
              rotate_left
              · iexact HO
              ipureintro; intro p hp
              rcases Finset.mem_insert.mp hp with rfl | hp
              · exact .inr rfl
              rcases Finset.mem_insert.mp hp with rfl | hp
              · exact .inr rfl
              rcases Finset.mem_insert.mp hp with rfl | hp
              · exact .inr rfl
              rcases Finset.mem_insert.mp hp with rfl | hp
              · exact .inr rfl
              exact hW' p hp
            isplitl [HX F8_src F9_src]
            · iapply (Entails.of_eq (xSet_in (xP d L fx) k.val hk).symm)
              isplitl [F8_src]; · iapply (Entails.of_eq (xP_pos d L fx v0).symm); iexact F8_src
              isplitl [F9_src]; · iapply (Entails.of_eq (xP_pos d L fx v1).symm); iexact F9_src
              iexact HX
            isplitl [HOut F10_dst F11_dst]
            · iapply (Entails.of_eq (oSet_in (oMix d L fx (k.val + 1)) k.val hk (by omega)).symm)
              isplitl [F10_dst]; · iapply (Entails.of_eq ((oMix_lt d L fx (t := k.val + 1) (n := 2 * k.val - 2) (by omega)).trans (oQ_pos d L fx hm0.2)).symm); iexact F10_dst
              isplitl [F11_dst]
              · iapply (Entails.of_eq ((oMix_lt d L fx (t := k.val + 1) (n := 2 * k.val - 1) (by omega)).trans (oQ_pos d L fx (n := 2 * k.val - 1) (by have := hm1.2; rwa [show 2 * k.val + 1 - 2 = 2 * k.val - 1 by omega] at this))).symm)
                iapply (Entails.of_eq (congrArg (oqPiece d L fx) (show 2 * k.val + 1 - 2 = 2 * k.val - 1 by omega))); iexact F11_dst
              iapply (Entails.of_eq (oMix_core d L fx k.val)); iexact HOut
            isplitl [H4 F8]
            · iapply (Entails.of_eq (congrArg (inSlotV d L fx a4 cc5_scratch4.sem) (show 2 * k.val + 2 = 2 * (k.val + 1) by ring)))
              iapply (Entails.of_eq (inSlotV_neg d L fx v2).symm)
              isplitl [H4]; · iexists _; iexact H4
              iexact F8
            isplitl [F10 H6]
            · iapply (Entails.of_eq (congrArg (outSlotV d L fx a6 cc5_scratch6.sem) (show 2 * k.val + 2 = 2 * (k.val + 1) by ring)))
              iapply (fl_outV d L fx (off_5 L k v0) (k5_off5_inb L k k5_h2) v0 a4 a6 cc5_scratch6.sem f0 g4 g6' hl6 hin4); iexists _
              isplitr
              rotate_left
              · isplitl [F10]; · iexact F10
                iexact H6
              ipureintro; intro y; rfl
            isplitl [H5 F9]
            · iapply (Entails.of_eq (congrArg (inSlotV d L fx a5 cc5_scratch5.sem) (show 2 * k.val + 3 = 2 * (k.val + 1) + 1 by ring)))
              iapply (Entails.of_eq (inSlotV_neg d L fx v3').symm)
              isplitl [H5]; · iexists _; iexact H5
              iexact F9
            · iapply (Entails.of_eq (congrArg (outSlotV d L fx a7 cc5_scratch7.sem) (show 2 * k.val + 1 + 2 = 2 * (k.val + 1) + 1 by ring)))
              iapply (fl_outV d L fx (off_10 L k v1) (k5_off10_inb L k k5_h5) v1 a5 a7 cc5_scratch7.sem f1 g5 g7' hl7 hin5); iexists _
              isplitr
              rotate_left
              · isplitl [F11]; · iexact F11
                iexact H7
              ipureintro; intro y; rfl
          · -- the last trip of a tile with fifteen pieces: the second slot only drains
            have k5_h1 : k5_cond1 k = 1#1 := (cond1_iff k).mpr (by omega)
            have k5_h2 : k5_cond2 L k = 1#1 := cond2_iff L k
            have k5_h3 : ¬ k5_cond3 L k = 1#1 := fun h => absurd ((cond3_iff L k).mp h) (by omega)
            have k5_h4 : k5_cond4 k = 1#1 := (cond4_iff k).mpr (by omega)
            have k5_h5 : ¬ k5_cond5 L k = 1#1 := fun h => absurd ((cond5_iff L k).mp h) (by first | (unfold valid big at *; omega) | (unfold big at *; omega) | omega)
            have k5_h6 : ¬ k5_cond6 L k = 1#1 := fun h => absurd ((cond6_iff L k).mp h) (by first | (unfold valid big at *; omega) | (unfold big at *; omega) | omega)
            have v0 : valid L (2 * k.val) := by unfold valid big at *; omega
            have v1 : ¬ valid L (2 * k.val + 1) := by unfold valid big at *; omega
            have v2 : ¬ valid L (2 * k.val + 2) := by unfold valid big at *; omega
            have v3' : ¬ valid L (2 * k.val + 3) := by unfold valid big at *; omega
            have hm0 : 2 ≤ 2 * k.val ∧ valid L (2 * k.val - 2) := ⟨by omega, by unfold valid big at *; omega⟩
            have hm1 : 2 ≤ 2 * k.val + 1 ∧ valid L (2 * k.val + 1 - 2) := ⟨by omega, by unfold valid big at *; omega⟩
            ihave S8 := (Entails.of_eq (inSlotV_pos d L fx v0)) $$ S8
            icases S8 with ⟨%g4, %hin4, F8⟩
            ihave S9 := (Entails.of_eq (inSlotV_neg d L fx v1)) $$ S9
            icases S9 with ⟨⟨%g5, H5⟩, F9⟩
            ihave S10 := (Entails.of_eq (outSlotV_pos d L fx hm0)) $$ S10
            icases S10 with ⟨%g6, F10, R6⟩
            ihave S11 := (Entails.of_eq (outSlotV_pos d L fx hm1)) $$ S11
            icases S11 with ⟨%g7, F11, R7⟩
            ihave HX := (Entails.of_eq (xSet_out (xP d L fx) k.val hk)) $$ HX
            icases HX with ⟨-, -, HX⟩
            ihave HOut := (Entails.of_eq (oSet_out (oMix d L fx k.val) k.val hk)) $$ HOut
            icases HOut with ⟨Y0, -, HOut⟩
            ihave Y0 := (Entails.of_eq ((oMix_ge d L fx (t := k.val) (n := 2 * k.val) (by omega)).trans (oP_pos (F := F) d L v0))) $$ Y0
            icases Y0 with ⟨%f0, Y0⟩
            ihave Y0 := (Entails.of_eq (out_congr d L (off_5 L k v0).symm (out_inb L _) (k5_off5_inb L k k5_h2) f0)) $$ Y0
            sl_exec
            sl_for (laneV0 d L g4) $$ [F8_dst R6]
            case region =>
              intro (j : Fin k5_t2_loop.trips) _
              unfold laneV0
              iintro ⟨HA, %g, HB, %hl⟩
              sl_exec
              sl_step
              isplitl [HA]; · iexact HA
              iexists _; isplitl [HB]; · iexact HB
              ipureintro; exact lanes_step d L a4 a6 g4 g j _ _ hl
            · unfold laneV0
              isplitl [F8_dst]; · iexact F8_dst
              iexists _; isplitl [R6]; · iexact R6
              ipureintro; exact lanes_zero d L a4 a6 g4 _
            iintro %_ HI
            unfold laneV0
            icases HI with ⟨H4, %g6', H6, %hl6⟩
            have hl6 : Lanes d L a4 a6 g4 g6' 200 := Eq.mp (congrArg (Lanes d L a4 a6 g4 g6') trips2) hl6
            sl_exec
            sl_step
            isplitr; · iexact Hmw
            isplitl [HO]
            · iexists _; isplitr
              rotate_left
              · iexact HO
              ipureintro; intro p hp
              rcases Finset.mem_insert.mp hp with rfl | hp
              · exact .inr rfl
              rcases Finset.mem_insert.mp hp with rfl | hp
              · exact .inr rfl
              rcases Finset.mem_insert.mp hp with rfl | hp
              · exact .inr rfl
              exact hW' p hp
            isplitl [HX F8_src]
            · iapply (Entails.of_eq (xSet_in (xP d L fx) k.val hk).symm)
              isplitl [F8_src]; · iapply (Entails.of_eq (xP_pos d L fx v0).symm); iexact F8_src
              isplitr; · iapply (Entails.of_eq (xP_neg d L fx v1).symm); iempintro
              iexact HX
            isplitl [HOut F10_dst F11_dst]
            · iapply (Entails.of_eq (oSet_in (oMix d L fx (k.val + 1)) k.val hk (by omega)).symm)
              isplitl [F10_dst]; · iapply (Entails.of_eq ((oMix_lt d L fx (t := k.val + 1) (n := 2 * k.val - 2) (by omega)).trans (oQ_pos d L fx hm0.2)).symm); iexact F10_dst
              isplitl [F11_dst]
              · iapply (Entails.of_eq ((oMix_lt d L fx (t := k.val + 1) (n := 2 * k.val - 1) (by omega)).trans (oQ_pos d L fx (n := 2 * k.val - 1) (by have := hm1.2; rwa [show 2 * k.val + 1 - 2 = 2 * k.val - 1 by omega] at this))).symm)
                iapply (Entails.of_eq (congrArg (oqPiece d L fx) (show 2 * k.val + 1 - 2 = 2 * k.val - 1 by omega))); iexact F11_dst
              iapply (Entails.of_eq (oMix_core d L fx k.val)); iexact HOut
            isplitl [H4 F8]
            · iapply (Entails.of_eq (congrArg (inSlotV d L fx a4 cc5_scratch4.sem) (show 2 * k.val + 2 = 2 * (k.val + 1) by ring)))
              iapply (Entails.of_eq (inSlotV_neg d L fx v2).symm)
              isplitl [H4]; · iexists _; iexact H4
              iexact F8
            isplitl [F10 H6]
            · iapply (Entails.of_eq (congrArg (outSlotV d L fx a6 cc5_scratch6.sem) (show 2 * k.val + 2 = 2 * (k.val + 1) by ring)))
              iapply (fl_outV d L fx (off_5 L k v0) (k5_off5_inb L k k5_h2) v0 a4 a6 cc5_scratch6.sem f0 g4 g6' hl6 hin4); iexists _
              isplitr
              rotate_left
              · isplitl [F10]; · iexact F10
                iexact H6
              ipureintro; intro y; rfl
            isplitl [H5 F9]
            · iapply (Entails.of_eq (congrArg (inSlotV d L fx a5 cc5_scratch5.sem) (show 2 * k.val + 3 = 2 * (k.val + 1) + 1 by ring)))
              iapply (Entails.of_eq (inSlotV_neg d L fx v3').symm)
              isplitl [H5]; · iexists _; iexact H5
              iexact F9
            · iapply (Entails.of_eq (outSlotV_neg d L fx (m := 2 * (k.val + 1) + 1) (by intro h; apply v1; have := h.2; rwa [show 2 * (k.val + 1) + 1 - 2 = 2 * k.val + 1 by omega] at this)).symm)
              isplitl [R7]; · iexists _; iexact R7
              iexact F11
    · have hk0 : k.val = 0 := by omega
      -- the first trip: nothing to drain
      have k5_h1 : ¬ k5_cond1 k = 1#1 := fun h => absurd ((cond1_iff k).mp h) (by omega)
      have k5_h2 : k5_cond2 L k = 1#1 := cond2_iff L k
      have k5_h3 : k5_cond3 L k = 1#1 := (cond3_iff L k).mpr (by omega)
      have k5_h4 : ¬ k5_cond4 k = 1#1 := fun h => absurd ((cond4_iff k).mp h) (by omega)
      have k5_h5 : k5_cond5 L k = 1#1 := (cond5_iff L k).mpr (by first | (unfold valid big at *; omega) | (unfold big at *; omega) | omega)
      have k5_h6 : k5_cond6 L k = 1#1 := (cond6_iff L k).mpr (by first | (unfold valid big at *; omega) | (unfold big at *; omega) | omega)
      have v0 : valid L (2 * k.val) := by unfold valid big at *; omega
      have v1 : valid L (2 * k.val + 1) := by unfold valid big at *; omega
      have v2 : valid L (2 * k.val + 2) := by unfold valid big at *; omega
      have v3' : valid L (2 * k.val + 3) := by unfold valid big at *; omega
      have hm0 : ¬ (2 ≤ 2 * k.val ∧ valid L (2 * k.val - 2)) := by omega
      have hm1 : ¬ (2 ≤ 2 * k.val + 1 ∧ valid L (2 * k.val + 1 - 2)) := by omega
      ihave S8 := (Entails.of_eq (inSlotV_pos d L fx v0)) $$ S8
      icases S8 with ⟨%g4, %hin4, F8⟩
      ihave S9 := (Entails.of_eq (inSlotV_pos d L fx v1)) $$ S9
      icases S9 with ⟨%g5, %hin5, F9⟩
      ihave S10 := (Entails.of_eq (outSlotV_neg d L fx hm0)) $$ S10
      icases S10 with ⟨⟨%g6, R6⟩, F10⟩
      ihave S11 := (Entails.of_eq (outSlotV_neg d L fx hm1)) $$ S11
      icases S11 with ⟨⟨%g7, R7⟩, F11⟩
      ihave HX := (Entails.of_eq (xSet_out (xP d L fx) k.val hk)) $$ HX
      icases HX with ⟨X2, X3, HX⟩
      ihave X2 := (Entails.of_eq (xP_pos d L fx v2)) $$ X2
      ihave X2 := (Entails.of_eq (in_congr d L (off_6 L k v2).symm (in_inb L _) (k5_off6_inb L k k5_h3) fx)) $$ X2
      ihave X3 := (Entails.of_eq (xP_pos d L fx v3')) $$ X3
      ihave X3 := (Entails.of_eq (in_congr d L (off_11 L k v3').symm (in_inb L _) (k5_off11_inb L k k5_h6) fx)) $$ X3
      ihave HOut := (Entails.of_eq (oSet_out (oMix d L fx k.val) k.val hk)) $$ HOut
      icases HOut with ⟨Y0, Y1, HOut⟩
      ihave Y0 := (Entails.of_eq ((oMix_ge d L fx (t := k.val) (n := 2 * k.val) (by omega)).trans (oP_pos (F := F) d L v0))) $$ Y0
      icases Y0 with ⟨%f0, Y0⟩
      ihave Y0 := (Entails.of_eq (out_congr d L (off_5 L k v0).symm (out_inb L _) (k5_off5_inb L k k5_h2) f0)) $$ Y0
      ihave Y1 := (Entails.of_eq ((oMix_ge d L fx (t := k.val) (n := 2 * k.val + 1) (by omega)).trans (oP_pos (F := F) d L v1))) $$ Y1
      icases Y1 with ⟨%f1, Y1⟩
      ihave Y1 := (Entails.of_eq (out_congr d L (off_10 L k v1).symm (out_inb L _) (k5_off10_inb L k k5_h5) f1)) $$ Y1
      sl_exec
      sl_for (laneV0 d L g4) $$ [F8_dst R6]
      case region =>
        intro (j : Fin k5_t2_loop.trips) _
        unfold laneV0
        iintro ⟨HA, %g, HB, %hl⟩
        sl_exec
        sl_step
        isplitl [HA]; · iexact HA
        iexists _; isplitl [HB]; · iexact HB
        ipureintro; exact lanes_step d L a4 a6 g4 g j _ _ hl
      · unfold laneV0
        isplitl [F8_dst]; · iexact F8_dst
        iexists _; isplitl [R6]; · iexact R6
        ipureintro; exact lanes_zero d L a4 a6 g4 _
      iintro %_ HI
      unfold laneV0
      icases HI with ⟨H4, %g6', H6, %hl6⟩
      have hl6 : Lanes d L a4 a6 g4 g6' 200 := Eq.mp (congrArg (Lanes d L a4 a6 g4 g6') trips2) hl6
      sl_exec
      sl_for (laneV1 d L g5) $$ [F9_dst R7]
      case region =>
        intro (j : Fin k5_t3_loop.trips) _
        unfold laneV1
        iintro ⟨HA, %g, HB, %hl⟩
        sl_exec
        sl_step
        isplitl [HA]; · iexact HA
        iexists _; isplitl [HB]; · iexact HB
        ipureintro; exact lanes_step' d L a5 a7 g5 g j _ _ hl
      · unfold laneV1
        isplitl [F9_dst]; · iexact F9_dst
        iexists _; isplitl [R7]; · iexact R7
        ipureintro; exact lanes_zero d L a5 a7 g5 _
      iintro %_ HI
      unfold laneV1
      icases HI with ⟨H5, %g7', H7, %hl7⟩
      have hl7 : Lanes d L a5 a7 g5 g7' 200 := Eq.mp (congrArg (Lanes d L a5 a7 g5 g7') trips3) hl7
      sl_exec
      sl_step
      isplitr; · iexact Hmw
      isplitl [HO]
      · iexists _; isplitr
        rotate_left
        · iexact HO
        ipureintro; intro p hp
        rcases Finset.mem_insert.mp hp with rfl | hp
        · exact .inr rfl
        rcases Finset.mem_insert.mp hp with rfl | hp
        · exact .inr rfl
        exact hW' p hp
      isplitl [HX F8_src F9_src]
      · iapply (Entails.of_eq (xSet_in (xP d L fx) k.val hk).symm)
        isplitl [F8_src]; · iapply (Entails.of_eq (xP_pos d L fx v0).symm); iexact F8_src
        isplitl [F9_src]; · iapply (Entails.of_eq (xP_pos d L fx v1).symm); iexact F9_src
        iexact HX
      isplitl [HOut]
      · iapply (Entails.of_eq (congrArg (fun s => bigSep s (oMix d L fx (k.val + 1))) (show oCore k.val = oSet (k.val + 1) by rw [hk0]; decide)))
        iapply (Entails.of_eq (oMix_core d L fx k.val)); iexact HOut
      isplitl [F8]
      · iapply (Entails.of_eq (congrArg (inSlotV d L fx a4 cc5_scratch4.sem) (show 2 * k.val + 2 = 2 * (k.val + 1) by ring)))
        iapply (fl_inV d L fx (off_6 L k v2) (k5_off6_inb L k k5_h3) v2 a4 cc5_scratch4.sem); iexists _, _
        isplitr
        rotate_left
        · iexact F8
        ipureintro; intro y; rfl
      isplitl [F10 H6]
      · iapply (Entails.of_eq (congrArg (outSlotV d L fx a6 cc5_scratch6.sem) (show 2 * k.val + 2 = 2 * (k.val + 1) by ring)))
        iapply (fl_outV d L fx (off_5 L k v0) (k5_off5_inb L k k5_h2) v0 a4 a6 cc5_scratch6.sem f0 g4 g6' hl6 hin4); iexists _
        isplitr
        rotate_left
        · isplitl [F10]; · iexact F10
          iexact H6
        ipureintro; intro y; rfl
      isplitl [F9]
      · iapply (Entails.of_eq (congrArg (inSlotV d L fx a5 cc5_scratch5.sem) (show 2 * k.val + 3 = 2 * (k.val + 1) + 1 by ring)))
        iapply (fl_inV d L fx (off_11 L k v3') (k5_off11_inb L k k5_h6) v3' a5 cc5_scratch5.sem); iexists _, _
        isplitr
        rotate_left
        · iexact F9
        ipureintro; intro y; rfl
      · iapply (Entails.of_eq (congrArg (outSlotV d L fx a7 cc5_scratch7.sem) (show 2 * k.val + 1 + 2 = 2 * (k.val + 1) + 1 by ring)))
        iapply (fl_outV d L fx (off_10 L k v1) (k5_off10_inb L k k5_h5) v1 a5 a7 cc5_scratch7.sem f1 g5 g7' hl7 hin5); iexists _
        isplitr
        rotate_left
        · isplitl [F11]; · iexact F11
          iexact H7
        ipureintro; intro y; rfl
  · unfold invV
    isplitr; · iexact Hmw
    isplitl [HO]
    · iexists W; isplitr
      · ipureintro; exact fun p hp => .inl hp
      · iexact HO
    isplitl [HX]; · iexact HX
    isplitl [HOut]; · iapply (Entails.of_eq (oMix_zero d L fx).symm); iexact HOut
    isplitl [S8]; · iexact S8
    isplitl [H6 Hs10]
    · rw [outSlotV_neg d L fx (by omega)]; isplitl [H6]; · iexists _; iexact H6
      iexact Hs10
    isplitl [S9]; · iexact S9
    rw [outSlotV_neg d L fx (by omega)]; isplitl [H7]; · iexists _; iexact H7
    iexact Hs11
  iintro %acc' HI
  ihave HI := (Entails.of_eq (congrArg (fun t => invV d L O W fx t acc') trips1)) $$ HI
  unfold invV
  icases HI with ⟨-, ⟨%W', %hW', HO⟩, HX, HOut, S8, S10, S9, S11⟩
  have nv16 : ¬ valid L (2 * 8) := by unfold valid; omega
  have nv17 : ¬ valid L (2 * 8 + 1) := by unfold valid; omega
  have hm14 : 2 ≤ 2 * 8 ∧ valid L (2 * 8 - 2) := ⟨by omega, Or.inl (by omega)⟩
  ihave S8 := (Entails.of_eq (inSlotV_neg d L fx nv16)) $$ S8
  icases S8 with ⟨⟨%g4', H4⟩, Hs8⟩
  ihave S9 := (Entails.of_eq (inSlotV_neg d L fx nv17)) $$ S9
  icases S9 with ⟨⟨%g5', H5⟩, Hs9⟩
  ihave S10 := (Entails.of_eq (outSlotV_pos d L fx hm14)) $$ S10
  icases S10 with ⟨%g6', F10, R6⟩
  by_cases hb : big L
  · have k5_h8 : k5_cond8 L = 1#1 := (cond8_iff L).mpr hb
    have hm15 : 2 ≤ 2 * 8 + 1 ∧ valid L (2 * 8 + 1 - 2) := ⟨by omega, Or.inr ⟨by omega, hb⟩⟩
    ihave S11 := (Entails.of_eq (outSlotV_pos d L fx hm15)) $$ S11
    icases S11 with ⟨%g7', F11, R7⟩
    sl_exec
    sl_step
    isplitl [HX]; · iapply (xRange_end d L fx); iexact HX
    isplitl [HOut F10_dst F11_dst]
    · iapply (Entails.of_eq (oRange_end (oQ d L fx)).symm)
      isplitl [F10_dst]; · iapply (Entails.of_eq (oQ_pos d L fx hm14.2).symm); iexact F10_dst
      isplitl [F11_dst]; · iapply (Entails.of_eq (oQ_pos d L fx hm15.2).symm); iexact F11_dst
      iapply (Entails.of_eq (oMix_end d L fx)); iexact HOut
    isplitl [H4]; · iexists _; iexact H4
    isplitl [H5]; · iexists _; iexact H5
    isplitl [R6]; · iexists _; iexact R6
    isplitl [R7]; · iexists _; iexact R7
    isplitl [Hs8]; · iexact Hs8
    isplitl [Hs9]; · iexact Hs9
    isplitl [F10]; · iexact F10
    isplitl [F11]; · iexact F11
    isplitl [HO]
    · iexists _; isplitr
      rotate_left
      · iexact HO
      ipureintro; intro p hp
      rcases Finset.mem_insert.mp hp with rfl | hp
      · exact .inr rfl
      rcases Finset.mem_insert.mp hp with rfl | hp
      · exact .inr rfl
      exact hW' p hp
    iexact HR
  · have k5_h8 : ¬ k5_cond8 L = 1#1 := fun h => hb ((cond8_iff L).mp h)
    have hm15 : ¬ (2 ≤ 2 * 8 + 1 ∧ valid L (2 * 8 + 1 - 2)) := by intro h; have := h.2; unfold valid at this; omega
    ihave S11 := (Entails.of_eq (outSlotV_neg d L fx hm15)) $$ S11
    icases S11 with ⟨⟨%g7', R7⟩, F11⟩
    sl_exec
    sl_step
    isplitl [HX]; · iapply (xRange_end d L fx); iexact HX
    isplitl [HOut F10_dst]
    · iapply (Entails.of_eq (oRange_end (oQ d L fx)).symm)
      isplitl [F10_dst]; · iapply (Entails.of_eq (oQ_pos d L fx hm14.2).symm); iexact F10_dst
      isplitr; · iapply (Entails.of_eq (oQ_neg d L fx (n := 15) (by unfold valid; omega)).symm); iempintro
      iapply (Entails.of_eq (oMix_end d L fx)); iexact HOut
    isplitl [H4]; · iexists _; iexact H4
    isplitl [H5]; · iexists _; iexact H5
    isplitl [R6]; · iexists _; iexact R6
    isplitl [R7]; · iexists _; iexact R7
    isplitl [Hs8]; · iexact Hs8
    isplitl [Hs9]; · iexact Hs9
    isplitl [F10]; · iexact F10
    isplitl [F11]; · iexact F11
    isplitl [HO]
    · iexists _; isplitr
      rotate_left
      · iexact HO
      ipureintro; intro p hp
      rcases Finset.mem_insert.mp hp with rfl | hp
      · exact .inr rfl
      exact hW' p hp
    iexact HR

/-! The subcore's scoped storage: the four staging buffers and the four semaphores of this call, and the rest. -/

abbrev c8 : GSem nD τ sig := (thr d L, SemLoc.dma cc5_scratch4.sem)
abbrev c9 : GSem nD τ sig := (thr d L, SemLoc.dma cc5_scratch5.sem)
abbrev c10 : GSem nD τ sig := (thr d L, SemLoc.dma cc5_scratch6.sem)
abbrev c11 : GSem nD τ sig := (thr d L, SemLoc.dma cc5_scratch7.sem)

omit [FloatOps F] in
theorem ownSems0_V :
    (ownSems0 (thr d L) : sProp 𝕄)
      = iprop(semVal (c8 d L) 0 ∗ semVal (c9 d L) 0 ∗ semVal (c10 d L) 0 ∗ semVal (c11 d L) 0
          ∗ bigSep (((((ownCells (thr d L)).erase (c8 d L)).erase (c9 d L)).erase (c10 d L)).erase (c11 d L)) fun g => semVal g 0) := by
  unfold SparseCore.Cfg.ownSems0
  rw [SparseCore.bigSep_erase' ((mem_ownCells (g := c8 d L)).mpr ⟨rfl, by
      show (SemLoc.dma cc5_scratch4.sem : SemLoc sig).isScoped .scVector = true; decide⟩),
    SparseCore.bigSep_erase' (Finset.mem_erase.mpr ⟨fun e => absurd (Prod.mk.inj e).2 (by decide), (mem_ownCells (g := c9 d L)).mpr ⟨rfl, by
      show (SemLoc.dma cc5_scratch5.sem : SemLoc sig).isScoped .scVector = true; decide⟩⟩),
    SparseCore.bigSep_erase' (Finset.mem_erase.mpr ⟨fun e => absurd (Prod.mk.inj e).2 (by decide), Finset.mem_erase.mpr ⟨fun e => absurd (Prod.mk.inj e).2 (by decide),
      (mem_ownCells (g := c10 d L)).mpr ⟨rfl, by show (SemLoc.dma cc5_scratch6.sem : SemLoc sig).isScoped .scVector = true; decide⟩⟩⟩),
    SparseCore.bigSep_erase' (Finset.mem_erase.mpr ⟨fun e => absurd (Prod.mk.inj e).2 (by decide), Finset.mem_erase.mpr ⟨fun e => absurd (Prod.mk.inj e).2 (by decide),
      Finset.mem_erase.mpr ⟨fun e => absurd (Prod.mk.inj e).2 (by decide),
      (mem_ownCells (g := c11 d L)).mpr ⟨rfl, by show (SemLoc.dma cc5_scratch7.sem : SemLoc sig).isScoped .scVector = true; decide⟩⟩⟩⟩)]

abbrev pV (L : grid5.Coords) : Proc τ := Proc.scVector (cV L) (jV L)

omit [FloatOps F] in
theorem ownBufs_V :
    (ownBufs (thr d L) : sProp 𝕄)
      = iprop((∃ f, (thr d L).loc cc5_scratch0 ↦{fullShare} f) ∗ (∃ f, (thr d L).loc cc5_scratch1 ↦{fullShare} f)
          ∗ (∃ f, (thr d L).loc cc5_scratch2 ↦{fullShare} f) ∗ (∃ f, (thr d L).loc cc5_scratch3 ↦{fullShare} f)
          ∗ bigSep (((((ownRefs (τ := τ) (pV L)).erase ((pV L).devRef cc5_scratch0)).erase ((pV L).devRef cc5_scratch1)).erase
              ((pV L).devRef cc5_scratch2)).erase ((pV L).devRef cc5_scratch3))
              fun b => iprop(∃ f, ((d, b) : Loc nD τ sig) ↦{fullShare} f)) := by
  unfold SparseCore.Cfg.ownBufs
  refine (SparseCore.bigSep_erase' (SparseCore.Cfg.mem_ownRefs_of_owner (p := pV L) (b := (pV L).devRef cc5_scratch0) rfl)).trans ?_
  rw [SparseCore.bigSep_erase' (Finset.mem_erase.mpr ⟨fun e => absurd (Proc.devRef_injective _ e) (show (cc5_scratch1 : Ref sig .scVector) ≠ cc5_scratch0 by decide),
      SparseCore.Cfg.mem_ownRefs_of_owner (p := pV L) (b := (pV L).devRef cc5_scratch1) rfl⟩),
    SparseCore.bigSep_erase' (Finset.mem_erase.mpr ⟨fun e => absurd (Proc.devRef_injective _ e) (show (cc5_scratch2 : Ref sig .scVector) ≠ cc5_scratch1 by decide),
      Finset.mem_erase.mpr ⟨fun e => absurd (Proc.devRef_injective _ e) (show (cc5_scratch2 : Ref sig .scVector) ≠ cc5_scratch0 by decide),
      SparseCore.Cfg.mem_ownRefs_of_owner (p := pV L) (b := (pV L).devRef cc5_scratch2) rfl⟩⟩),
    SparseCore.bigSep_erase' (Finset.mem_erase.mpr ⟨fun e => absurd (Proc.devRef_injective _ e) (show (cc5_scratch3 : Ref sig .scVector) ≠ cc5_scratch2 by decide),
      Finset.mem_erase.mpr ⟨fun e => absurd (Proc.devRef_injective _ e) (show (cc5_scratch3 : Ref sig .scVector) ≠ cc5_scratch1 by decide),
      Finset.mem_erase.mpr ⟨fun e => absurd (Proc.devRef_injective _ e) (show (cc5_scratch3 : Ref sig .scVector) ≠ cc5_scratch0 by decide),
      SparseCore.Cfg.mem_ownRefs_of_owner (p := pV L) (b := (pV L).devRef cc5_scratch3) rfl⟩⟩⟩)]

/-- The rest of the subcore's scoped storage, which the task does not touch. -/
def restR : sProp 𝕄 :=
  iprop((bigSep (((((ownRefs (τ := τ) (pV L)).erase ((pV L).devRef cc5_scratch0)).erase ((pV L).devRef cc5_scratch1)).erase
              ((pV L).devRef cc5_scratch2)).erase ((pV L).devRef cc5_scratch3))
              fun b => iprop(∃ f, ((d, b) : Loc nD τ sig) ↦{fullShare} f))
      ∗ bigSep (((((ownCells (thr d L)).erase (c8 d L)).erase (c9 d L)).erase (c10 d L)).erase (c11 d L)) fun g => semVal g 0)

theorem body_pre (hO : ∀ g, O g none = 0) :
    iprop(levAts (K (F := F)).L (K (F := F)).lev ∗ emp ∗ goRes d L fx ∗ ownBufs (thr d L) ∗ ownSems0 (thr d L) ∗ owes (thr d L) O W)
      ⊢ runPre d L O W fx (restR (F := F) d L) := by
  rw [ownSems0_V, ownBufs_V]
  unfold goRes runPre restR
  iintro ⟨#Hlv, -, ⟨HX, HOut⟩, ⟨H4, H5, H6, H7, Hbufs⟩, ⟨Hs8, Hs9, Hs10, Hs11, Hsems⟩, HO⟩
  ihave Hmw := ((K (F := F)).mayWaits_none (thr := thr d L) hO) $$ Hlv
  isplitr; · iexact Hmw
  isplitl [HO]; · iexact HO
  isplitl [HX]; · iexact HX
  isplitl [HOut]; · iexact HOut
  isplitl [H4]; · iexact H4
  isplitl [H5]; · iexact H5
  isplitl [H6]; · iexact H6
  isplitl [H7]; · iexact H7
  isplitl [Hs8]; · iexact Hs8
  isplitl [Hs9]; · iexact Hs9
  isplitl [Hs10]; · iexact Hs10
  isplitl [Hs11]; · iexact Hs11
  isplitl [Hbufs]; · iexact Hbufs
  iexact Hsems

theorem body_post :
    runPost d L O W fx (restR (F := F) d L)
      ⊢ iprop(tdRes d L fx ∗ ownBufs (thr d L) ∗ ownSems0 (thr d L) ∗ ∃ W', ⌜∀ p ∈ W', p ∈ W ∨ p.2 = none⌝ ∗ owes (thr d L) O W') := by
  rw [ownSems0_V, ownBufs_V]
  unfold tdRes runPost restR
  iintro ⟨HX, HOut, H4, H5, H6, H7, Hs8, Hs9, Hs10, Hs11, HW, Hbufs, Hsems⟩
  isplitl [HX HOut]
  · isplitl [HX]; · iexact HX
    iexact HOut
  isplitl [H4 H5 H6 H7 Hbufs]
  · isplitl [H4]; · iexact H4
    isplitl [H5]; · iexact H5
    isplitl [H6]; · iexact H6
    isplitl [H7]; · iexact H7
    iexact Hbufs
  isplitl [Hs8 Hs9 Hs10 Hs11 Hsems]
  · isplitl [Hs8]; · iexact Hs8
    isplitl [Hs9]; · iexact Hs9
    isplitl [Hs10]; · iexact Hs10
    isplitl [Hs11]; · iexact Hs11
    iexact Hsems
  iexact HW

/-- The task in the launch theorem's shape: from what the call hands the tile and the subcore's scoped storage to
    what the tile hands back and the storage again. -/
theorem tile_body (hF : (K (F := F)).Facts) (hO : ∀ g, O g none = 0) :
    iprop(levAts (K (F := F)).L (K (F := F)).lev ∗ emp ∗ goRes d L fx ∗ scopedBufs (thr d L) ∗ scopedSems0 (thr d L) ∗ owes (thr d L) O W)
      ⊢ wp frame (wpE (defs₀ (F := F)) 𝒱₀ (thr d L) none) Set.univ
          (cc5_sc_group L xtW (Memref.isWhole_whole _) oW (Memref.isWhole_whole _) a4 (Memref.isWhole_whole _) a5 (Memref.isWhole_whole _)
            a6 (Memref.isWhole_whole _) a7 (Memref.isWhole_whole _) cc5_scratch4 cc5_scratch5 cc5_scratch6 cc5_scratch7)
          fun _ => iprop(tdRes d L fx ∗ scopedBufs (thr d L) ∗ scopedSems0 (thr d L)
            ∗ ∃ W', ⌜∀ p ∈ W', p ∈ W ∨ p.2 = none⌝ ∗ owes (thr d L) O W') := by
  rw [(K (F := F)).scopedBufs_V hF d (cV L) (jV L), SparseCore.Cfg.scopedSems0_V (Val := Elt F) d (cV L) (jV L)]
  exact (body_pre d L O W fx hO).trans ((tile_run d L O W fx (restR (F := F) d L)).trans (wp_mono frame _ _ fun _ => body_post d L O W fx))

end Tile

end Cert.Proof.TileB5

end
-- ==== Proof.TileVal6.lean ====
/-
  What the staging buffers of one vector subcore hold while it copies a piece of 3200 consecutive elements of row 6 of
  the transposed argument into the flat result, read index by index. No program and no ownership here: only the contents.

  A transfer lands the piece in row 0 of an 8 × 3200 staging array (`InRow`: position (0, t) of that row holds element
  (0, pos + t) of the transposed argument, `pos` the piece's first column). A loop of 200 trips copies that row, 16 lanes
  per trip, into the first 3200 elements of a flat staging array of 25600: trip `j` reads the 1 × 16 window at columns
  [16 j, 16 j + 16) of row 0 and writes it, flattened, at elements [16 j, 16 j + 16). After `j` trips the first 16 j
  elements of the flat array are the first 16 j elements of the row (`Lanes`); a trip extends the prefix by 16
  (`lanes_step`: an element below 16 j is outside the window written and keeps its value, an element of the window reads
  the lane written there, which is the row's element at the same column). A second transfer writes the first 3200
  elements of the flat array to the piece of the result at the same `pos`; so every element of that piece of the result
  holds the element of row 6 of the transposed argument at its own position (`out_written`): the composite of the three
  index maps t ↦ (0, pos + t) ↦ (0, t) ↦ t ↦ pos + t is the identity on positions of the row.
-/
import proofs.«206869_g37898791420194_cont_8to1_b_558_20_alg».proof.Proof.TileK6Defs
import proofs.«206869_g37898791420194_cont_8to1_b_558_20_alg».proof.Proof.Spec
import Idealize.ShloMosaic.Lib.WritesUnit
import Idealize.ShloMosaic.Lib.ValueLayout

noncomputable section

namespace Cert.Proof.TileVal6

open Cert.Proof.TileK6 Cert.KernelIdeal Cert.KernelIdeal.Gen
open Idealize.ShloMosaic Idealize.ShloMosaic.ValueIdx

variable {F : FTy → Type} [FloatOps F]
variable (d : Dev nD) (L : grid6.Coords)
variable (fx : Buf (Elt F) ((Memref.whole main_v0_scv : Memref sig .scVector .hbm S22x1600000 .f32).view.loc (thr d L)))

abbrev rowRect : Rect S8x3200 := Rect.unit (s := S8x3200) ![0, 0] S1x3200.size inb_S8x3200_S1x3200_0_0

/-- row 0 of the staging array is piece n of the argument row -/
def InRow (a : Memref sig .scVector .vmem S8x3200 .f32) (ga : Buf (Elt F) (a.view.loc (thr d L))) (n : ℕ) : Prop :=
  ∀ y : S1x3200.Idx, a.view.read (Elt F) ga (rowRect.emb y) = (inM L n).view.read (Elt F) fx y

theorem inRow_fetch (a : Memref sig .scVector .vmem S8x3200 .f32) (gold : Buf (Elt F) (a.view.loc (thr d L)))
    (w : S1x3200.Idx → Elt F .f32) (n : ℕ) (hw : ∀ y, w y = (inM L n).view.read (Elt F) fx y) :
    InRow d L fx a (a.view.writes (Elt F) gold [⟨rowRect, w⟩]) n :=
  fun y => (View.read_writes_cons_emb a.view gold rowRect w [] y).trans (hw y)

def Lanes (a : Memref sig .scVector .vmem S8x3200 .f32) (b : Memref sig .scVector .vmem S25600 .f32)
    (ga : Buf (Elt F) (a.view.loc (thr d L))) (gb : Buf (Elt F) (b.view.loc (thr d L))) (j : ℕ) : Prop :=
  ∀ (r : ℕ) (hr : r < 3200), r < 16 * j →
    b.view.read (Elt F) gb (ix1 (⟨r, by omega⟩ : Fin 25600)) = a.view.read (Elt F) ga (ix2 (0 : Fin 8) (⟨r, hr⟩ : Fin 3200))

theorem lanes_zero (a : Memref sig .scVector .vmem S8x3200 .f32) (b : Memref sig .scVector .vmem S25600 .f32)
    (ga : Buf (Elt F) (a.view.loc (thr d L))) (gb : Buf (Elt F) (b.view.loc (thr d L))) : Lanes d L a b ga gb 0 := by
  intro r hr h; omega

/-- The 1 × 16 window at column `c` of the staging array, read at lane `t`, is element `(0, c + t)`. -/
theorem idx_window {off : Fin 2 → ℕ} {c : ℕ} (h : off = ![0, c]) (p : ∀ a', off a' + S1x16.size a' ≤ S8x3200.size a')
    (t : Fin 16) (hr : c + t.val < 3200) :
    (Rect.unit (s := S8x3200) off S1x16.size p).toLoadRect.idx (ix2 (0 : Fin 1) t) = ix2 (0 : Fin 8) (⟨c + t.val, hr⟩ : Fin 3200) := by
  subst h
  funext a'; apply Fin.ext
  rw [LoadRect.idx_apply]
  match a' with
  | ⟨0, _⟩ => show 0 + 1 * 0 = 0; omega
  | ⟨1, _⟩ => show c + 1 * t.val = c + t.val; omega

/-- One trip of a lane-copy loop, the offsets given by their closed forms. -/
theorem lanes_step_core (a : Memref sig .scVector .vmem S8x3200 .f32) (b : Memref sig .scVector .vmem S25600 .f32)
    (ga : Buf (Elt F) (a.view.loc (thr d L))) (gb : Buf (Elt F) (b.view.loc (thr d L)))
    (t : ℕ) {off3 : Fin 2 → ℕ} {off4 : Fin 1 → ℕ} (h3 : off3 = ![0, 16 * t]) (h4 : off4 = ![16 * t])
    (p3 : ∀ a', off3 a' + S1x16.size a' ≤ S8x3200.size a') (p4 : ∀ a', off4 a' + S16.size a' ≤ S25600.size a')
    (h : Lanes d L a b ga gb t) :
    Lanes d L a b ga (b.view.writes (Elt F) gb [⟨Rect.unit (s := S25600) off4 S16.size p4,
      shapeCast S16 (a.view.readAt (Elt F) (Rect.unit (s := S8x3200) off3 S1x16.size p3).toLoadRect ga) shapeCasts_S1x16_S16⟩]) (t + 1) := by
  intro r hr hlt
  by_cases hlo : r < 16 * t
  · refine (View.read_writes_cons_unit_of_not_mem b.view gb p4 _ [] _ h4 (0 : Fin 1) (Or.inl ?_)).trans (h r hr hlo)
    show r < 16 * t
    exact hlo
  · have hx : r - 16 * t < 16 := by omega
    refine (View.read_writes_cons_unit_of_mem b.view gb p4 _ [] _ (ix1 (⟨r - 16 * t, hx⟩ : Fin 16)) h4 ?_).trans ?_
    · intro a'
      match a' with
      | ⟨0, _⟩ => show r = 16 * t + (r - 16 * t); omega
    · rw [shapeCast_1a_a_apply, View.readAt_apply, idx_window h3 p3 ⟨r - 16 * t, hx⟩ (by show 16 * t + (r - 16 * t) < 3200; omega)]
      congr 2
      apply Fin.ext
      show 16 * t + (r - 16 * t) = r
      omega

theorem lanes_step (a : Memref sig .scVector .vmem S8x3200 .f32) (b : Memref sig .scVector .vmem S25600 .f32)
    (ga : Buf (Elt F) (a.view.loc (thr d L))) (gb : Buf (Elt F) (b.view.loc (thr d L)))
    (j : Fin k6_t2_loop.trips) (p3 : ∀ a', (k6_off3 j) a' + S1x16.size a' ≤ S8x3200.size a')
    (p4 : ∀ a', (k6_off4 j) a' + S16.size a' ≤ S25600.size a') (h : Lanes d L a b ga gb j.val) :
    Lanes d L a b ga (b.view.writes (Elt F) gb [⟨Rect.unit (s := S25600) (k6_off4 j) S16.size p4,
      k6_pay1 (a.view.readAt (Elt F) (Rect.unit (s := S8x3200) (k6_off3 j) S1x16.size p3).toLoadRect ga)⟩]) (j.val + 1) :=
  lanes_step_core d L a b ga gb j.val (k6_off3_eq j) (k6_off4_eq j) p3 p4 h

theorem lanes_step' (a : Memref sig .scVector .vmem S8x3200 .f32) (b : Memref sig .scVector .vmem S25600 .f32)
    (ga : Buf (Elt F) (a.view.loc (thr d L))) (gb : Buf (Elt F) (b.view.loc (thr d L)))
    (j : Fin k6_t3_loop.trips) (p3 : ∀ a', (k6_off8 j) a' + S1x16.size a' ≤ S8x3200.size a')
    (p4 : ∀ a', (k6_off9 j) a' + S16.size a' ≤ S25600.size a') (h : Lanes d L a b ga gb j.val) :
    Lanes d L a b ga (b.view.writes (Elt F) gb [⟨Rect.unit (s := S25600) (k6_off9 j) S16.size p4,
      k6_pay2 (a.view.readAt (Elt F) (Rect.unit (s := S8x3200) (k6_off8 j) S1x16.size p3).toLoadRect ga)⟩]) (j.val + 1) :=
  lanes_step_core d L a b ga gb j.val (k6_off8_eq j) (k6_off9_eq j) p3 p4 h

/-- Position `y` of the write-out window of the flat staging array is its element `y 0`. -/
theorem stg_emb (y : S3200.Idx) (hy : (y 0).val < 25600) :
    (Rect.unit (s := S25600) ![0] S3200.size inb_S25600_S3200_0).emb y = ix1 (⟨(y 0).val, hy⟩ : Fin 25600) := by
  funext a'; apply Fin.ext
  match a' with
  | ⟨0, _⟩ => show 0 + 1 * (y 0).val = (y 0).val; omega

/-- Position `(0, t)` of row 0 of the staging array is its element `(0, t)`. -/
theorem row_emb (t : Fin 3200) : rowRect.emb (ix2 (0 : Fin 1) t) = ix2 (0 : Fin 8) t := by
  funext a'; apply Fin.ext
  match a' with
  | ⟨0, _⟩ => show 0 + 1 * 0 = 0; omega
  | ⟨1, _⟩ => show 0 + 1 * t.val = t.val; omega

/-- Position `(0, t)` of piece `n` of the argument row is element `(0, pos + t)` of the transposed argument;
    position `y` of piece `n` of the result is element `pos + y 0` of the result. -/
theorem in_emb (n : ℕ) (t : Fin 3200) (h : pos L n + t.val < 1600000) :
    (inM L n).view.emb (ix2 (0 : Fin 1) t) = ix2 (6 : Fin 22) (⟨pos L n + t.val, h⟩ : Fin 1600000) := by
  funext a'; apply Fin.ext
  match a' with
  | ⟨0, _⟩ => show 6 + 1 * 0 = 6; omega
  | ⟨1, _⟩ => show pos L n + 1 * t.val = pos L n + t.val; omega

theorem out_emb (n : ℕ) (y : S3200.Idx) (h : pos L n + (y 0).val < 1600000) :
    (outM L n).view.emb y = ix1 (⟨pos L n + (y 0).val, h⟩ : Fin 1600000) := by
  funext a'; apply Fin.ext
  match a' with
  | ⟨0, _⟩ => show pos L n + 1 * (y 0).val = pos L n + (y 0).val; omega

/-- Both lane-copy loops run 200 trips: 200 · 16 = 3200, the whole row. -/
theorem trips2 : k6_t2_loop.trips = 200 := by decide
theorem trips3 : k6_t3_loop.trips = 200 := by decide

/-- After all its trips a lane-copy loop has copied the whole row. -/
theorem lanes_all (a : Memref sig .scVector .vmem S8x3200 .f32) (b : Memref sig .scVector .vmem S25600 .f32)
    (ga : Buf (Elt F) (a.view.loc (thr d L))) (gb : Buf (Elt F) (b.view.loc (thr d L)))
    (h : Lanes d L a b ga gb k6_t2_loop.trips) : Lanes d L a b ga gb 200 := trips2 ▸ h
theorem lanes_all' (a : Memref sig .scVector .vmem S8x3200 .f32) (b : Memref sig .scVector .vmem S25600 .f32)
    (ga : Buf (Elt F) (a.view.loc (thr d L))) (gb : Buf (Elt F) (b.view.loc (thr d L)))
    (h : Lanes d L a b ga gb k6_t3_loop.trips) : Lanes d L a b ga gb 200 := trips3 ▸ h

/-- The write-out of a piece: the first 3200 elements of the flat staging array, which the 200 lane copies filled from
    row 0 of the staging array, which the fetch filled from piece `n` of row 6 of the transposed argument, land at
    piece `n` of the result, at the same positions of the row. -/
theorem out_written (a : Memref sig .scVector .vmem S8x3200 .f32) (b : Memref sig .scVector .vmem S25600 .f32) (n : ℕ)
    (ga : Buf (Elt F) (a.view.loc (thr d L))) (gb : Buf (Elt F) (b.view.loc (thr d L)))
    (f0 : Buf (Elt F) ((outM L n).view.loc (thr d L))) (w : S3200.Idx → Elt F .f32)
    (hw : ∀ y, w y = (stg b).view.read (Elt F) gb y) (hl : Lanes d L a b ga gb 200) (hr : InRow d L fx a ga n) (hv : valid L n) :
    ∀ i ∈ (outM L n).view.set, ((outM L n).view.writes (Elt F) f0 [⟨Rect.whole _, w⟩]) i = Cert.Spec.row 6 fx i := by
  intro i hi
  obtain ⟨y, -, rfl⟩ := Finset.mem_map.mp hi
  have hy : (y 0).val < 3200 := (y 0).isLt
  have hp : pos L n + (y 0).val < 1600000 := by unfold pos; omega
  have e1 : (outM L n).view.writes (Elt F) f0 [⟨Rect.whole _, w⟩] ((outM L n).view.emb y) = w y := by
    have h := View.read_writes_cons_emb (outM L n).view f0 (Rect.whole _) w [] y
    rw [Rect.emb_whole_apply] at h
    exact (cast_eq _ _).symm.trans ((View.read_apply _ _).symm.trans h)
  have e2 : (stg b).view.read (Elt F) gb y = b.view.read (Elt F) gb (ix1 (⟨(y 0).val, by omega⟩ : Fin 25600)) :=
    congrArg (b.view.read (Elt F) gb) (stg_emb y (by omega))
  have e3 : a.view.read (Elt F) ga (ix2 (0 : Fin 8) (⟨(y 0).val, hy⟩ : Fin 3200))
      = (inM L n).view.read (Elt F) fx (ix2 (0 : Fin 1) (⟨(y 0).val, hy⟩ : Fin 3200)) :=
    (congrArg (a.view.read (Elt F) ga) (row_emb ⟨(y 0).val, hy⟩).symm).trans (hr _)
  have e4 : (inM L n).view.read (Elt F) fx (ix2 (0 : Fin 1) (⟨(y 0).val, hy⟩ : Fin 3200))
      = fx (ix2 (6 : Fin 22) (⟨pos L n + (y 0).val, hp⟩ : Fin 1600000)) :=
    ((View.read_apply _ _).trans (cast_eq _ _)).trans (congrArg fx (in_emb L n ⟨(y 0).val, hy⟩ hp))
  have e5 : Cert.Spec.row 6 fx ((outM L n).view.emb y) = fx (ix2 (6 : Fin 22) (⟨pos L n + (y 0).val, hp⟩ : Fin 1600000)) :=
    (congrArg (Cert.Spec.row 6 fx) (out_emb L n y hp)).trans (Cert.Spec.row_apply 6 fx _)
  exact e1.trans ((hw y).trans (e2.trans ((hl _ hy (by omega)).trans (e3.trans (e4.trans e5.symm)))))

end Cert.Proof.TileVal6

end
-- ==== Proof.TileK6.lean ====
/-
  One vector subcore's task of copy kernel 6 (counting from 0), run symbolically: the two fetch slots and two write-out slots
  between trips of the main loop (what each transfer in flight will hand back, and what the staging buffers hold), the
  invariant of the main loop and of the two lane-copy loops, and the task's run — from the tile's pieces of row 6 of
  the transposed argument and of the result to the same pieces with the result holding the row's elements.
-/
import proofs.«206869_g37898791420194_cont_8to1_b_558_20_alg».proof.Proof.TileK6Defs
import proofs.«206869_g37898791420194_cont_8to1_b_558_20_alg».proof.Proof.TileVal6
noncomputable section

namespace Cert.Proof.TileK6

open Cert.KernelIdeal Cert.KernelIdeal.Gen Cert.Proof.TileVal6
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 22) (Elt F) ℕ UU ℕ
local notation "xtW" => (Memref.whole Cert.KernelIdeal.main_v0_scv : Memref Cert.KernelIdeal.sig Kind.scVector Space.hbm Cert.KernelIdeal.S22x1600000 EltTy.f32)
local notation "oW" => (Memref.whole Cert.KernelIdeal.main_v7_scv : Memref Cert.KernelIdeal.sig Kind.scVector Space.hbm Cert.KernelIdeal.S1600000 EltTy.f32)
local notation "a4" => (Memref.whole Cert.KernelIdeal.cc6_scratch0 : Memref Cert.KernelIdeal.sig Kind.scVector Space.vmem Cert.KernelIdeal.S8x3200 EltTy.f32)
local notation "a5" => (Memref.whole Cert.KernelIdeal.cc6_scratch1 : Memref Cert.KernelIdeal.sig Kind.scVector Space.vmem Cert.KernelIdeal.S8x3200 EltTy.f32)
local notation "a6" => (Memref.whole Cert.KernelIdeal.cc6_scratch2 : Memref Cert.KernelIdeal.sig Kind.scVector Space.vmem Cert.KernelIdeal.S25600 EltTy.f32)
local notation "a7" => (Memref.whole Cert.KernelIdeal.cc6_scratch3 : Memref Cert.KernelIdeal.sig Kind.scVector Space.vmem Cert.KernelIdeal.S25600 EltTy.f32)

variable [FloatOps F]

section Tile

variable (d : Dev nD) (L : grid6.Coords)
variable (O : CellTallies nD τ sig (HIx 22)) (W : Waits sig (HIx 22))
variable (fx : Buf (Elt F) ((xtW).view.loc (thr d L)))

/-- Piece `n` of the result at its final contents. -/
abbrev oqPiece (n : ℕ) : sProp 𝕄 := (outM L n).view.loc (thr d L) ↦[(outM L n).view.set]{fullShare} (Cert.Spec.row 6 fx)
theorem oQ_pos {n : ℕ} (v : valid L n) : oQ d L fx n = oqPiece d L fx n := if_pos v
theorem oQ_neg {n : ℕ} (v : ¬ valid L n) : oQ d L fx n = iprop(emp) := if_neg v

/-- A fetch slot, remembering that the staging row it will hand back holds the piece. -/
def inSlotV (a : Memref sig .scVector .vmem S8x3200 .f32) (sm : DmaSem sig) (n : ℕ) : sProp 𝕄 :=
  if valid L n then
    iprop(∃ g, ⌜InRow d L fx a g n⌝ ∗ Transfers.Flight countersEmb (thr d L) (SemLoc.dma sm) (default : HIx 22) NN
      iprop((a.view.loc (thr d L) ↦{fullShare} g) ∗ xtPiece d L fx n))
  else iprop((∃ g, a.view.loc (thr d L) ↦{fullShare} g) ∗ semVal (thr d L, SemLoc.dma sm) 0)

/-- A write-out slot: the piece in flight will come back holding the row's elements. -/
def outSlotV (a : Memref sig .scVector .vmem S25600 .f32) (sm : DmaSem sig) (m : ℕ) : sProp 𝕄 :=
  if 2 ≤ m ∧ valid L (m - 2) then
    iprop(∃ g, Transfers.Flight countersEmb (thr d L) (SemLoc.dma sm) (default : HIx 22) NN
        iprop(oqPiece d L fx (m - 2) ∗ ((stg a).view.loc (thr d L) ↦[(stg a).view.set]{fullShare} g))
      ∗ (a.view.loc (thr d L) ↦[Finset.univ \ (stg a).view.set]{fullShare} g))
  else iprop((∃ g, a.view.loc (thr d L) ↦{fullShare} g) ∗ semVal (thr d L, SemLoc.dma sm) 0)

theorem inSlotV_pos {a : Memref sig .scVector .vmem S8x3200 .f32} {sm : DmaSem sig} {n : ℕ} (v : valid L n) :
    inSlotV d L fx a sm n = iprop(∃ g, ⌜InRow d L fx a g n⌝ ∗ Transfers.Flight countersEmb (thr d L) (SemLoc.dma sm) (default : HIx 22) NN
      iprop((a.view.loc (thr d L) ↦{fullShare} g) ∗ xtPiece d L fx n)) := by unfold inSlotV; rw [if_pos v]
theorem inSlotV_neg {a : Memref sig .scVector .vmem S8x3200 .f32} {sm : DmaSem sig} {n : ℕ} (v : ¬ valid L n) :
    inSlotV d L fx a sm n = iprop((∃ g, a.view.loc (thr d L) ↦{fullShare} g) ∗ semVal (thr d L, SemLoc.dma sm) 0) := by
  unfold inSlotV; rw [if_neg v]
theorem outSlotV_pos {a : Memref sig .scVector .vmem S25600 .f32} {sm : DmaSem sig} {m : ℕ} (h : 2 ≤ m ∧ valid L (m - 2)) :
    outSlotV d L fx a sm m = iprop(∃ g, Transfers.Flight countersEmb (thr d L) (SemLoc.dma sm) (default : HIx 22) NN
        iprop(oqPiece d L fx (m - 2) ∗ ((stg a).view.loc (thr d L) ↦[(stg a).view.set]{fullShare} g))
      ∗ (a.view.loc (thr d L) ↦[Finset.univ \ (stg a).view.set]{fullShare} g)) := by unfold outSlotV; rw [if_pos h]
theorem outSlotV_neg {a : Memref sig .scVector .vmem S25600 .f32} {sm : DmaSem sig} {m : ℕ} (h : ¬ (2 ≤ m ∧ valid L (m - 2))) :
    outSlotV d L fx a sm m = iprop((∃ g, a.view.loc (thr d L) ↦{fullShare} g) ∗ semVal (thr d L, SemLoc.dma sm) 0) := by
  unfold outSlotV; rw [if_neg h]

/-- A fetch just issued: the staging row will hold what the transfer reads, which is the piece. -/
theorem fl_inV {off : Fin 2 → ℕ} {n : ℕ} (h : off = ![6, pos L n]) (p : ∀ a, off a + S1x3200.size a ≤ S22x1600000.size a) (v : valid L n)
    (a : Memref sig .scVector .vmem S8x3200 .f32) (sm : DmaSem sig) :
    (iprop(∃ (gold : Buf (Elt F) (a.view.loc (thr d L))) (w : S1x3200.Idx → Elt F .f32),
        ⌜∀ y, w y = ((xtW).slice (Rect.unit (s := S22x1600000) off S1x3200.size p) (fun _ => rfl)).view.read (Elt F) fx y⌝
        ∗ Transfers.Flight countersEmb (thr d L) (SemLoc.dma sm) (default : HIx 22) NN
          iprop((a.view.loc (thr d L) ↦{fullShare} a.view.writes (Elt F) gold [⟨rowRect, w⟩])
            ∗ (((xtW).slice (Rect.unit (s := S22x1600000) off S1x3200.size p) (fun _ => rfl)).view.loc (thr d L)
                ↦[((xtW).slice (Rect.unit (s := S22x1600000) off S1x3200.size p) (fun _ => rfl)).view.set]{fullShare} fx))) : sProp 𝕄)
      ⊢ inSlotV d L fx a sm n := by
  subst h
  rw [inSlotV_pos d L fx v]
  iintro ⟨%gold, %w, %hw, H⟩
  iexists _
  isplitr
  · ipureintro; exact inRow_fetch d L fx a gold w n hw
  · iexact H

set_option maxHeartbeats 4000000 in
/-- A write-out just issued from a flat staging buffer whose first 3200 elements are the staging row, itself piece
    `n` of the argument row: the piece of the result will hold the row's elements. -/
theorem fl_outV {off : Fin 1 → ℕ} {n : ℕ} (h : off = ![pos L n]) (p : ∀ a, off a + S3200.size a ≤ S1600000.size a) (v : valid L n)
    (ar : Memref sig .scVector .vmem S8x3200 .f32) (a : Memref sig .scVector .vmem S25600 .f32) (sm : DmaSem sig)
    (f0 : Buf (Elt F) ((oW).view.loc (thr d L))) (ga : Buf (Elt F) (ar.view.loc (thr d L))) (gb : Buf (Elt F) (a.view.loc (thr d L)))
    (hl : Lanes d L ar a ga gb 200) (hr : InRow d L fx ar ga n) :
    (iprop(∃ (w : S3200.Idx → Elt F .f32),
        ⌜∀ y, w y = (stg a).view.read (Elt F) gb y⌝
        ∗ Transfers.Flight countersEmb (thr d L) (SemLoc.dma sm) (default : HIx 22) NN
          iprop((((oW).slice (Rect.unit (s := S1600000) off S3200.size p) (fun _ => rfl)).view.loc (thr d L)
                ↦[((oW).slice (Rect.unit (s := S1600000) off S3200.size p) (fun _ => rfl)).view.set]{fullShare}
                  (((oW).slice (Rect.unit (s := S1600000) off S3200.size p) (fun _ => rfl)).view.writes (Elt F) f0 [⟨Rect.whole _, w⟩]))
            ∗ ((stg a).view.loc (thr d L) ↦[(stg a).view.set]{fullShare} gb))
        ∗ (a.view.loc (thr d L) ↦[Finset.univ \ (stg a).view.set]{fullShare} gb)) : sProp 𝕄)
      ⊢ outSlotV d L fx a sm (n + 2) := by
  subst h
  rw [outSlotV_pos d L fx (m := n + 2) ⟨by omega, by simpa using v⟩]
  iintro ⟨%w, %hw, H, R⟩
  have hD : (iprop(((outM L n).view.loc (thr d L) ↦[(outM L n).view.set]{fullShare} ((outM L n).view.writes (Elt F) f0 [⟨Rect.whole _, w⟩]))
          ∗ ((stg a).view.loc (thr d L) ↦[(stg a).view.set]{fullShare} gb)) : sProp 𝕄)
      ⊢ iprop(oqPiece d L fx (n + 2 - 2) ∗ ((stg a).view.loc (thr d L) ↦[(stg a).view.set]{fullShare} gb)) := by
    rw [Nat.add_sub_cancel]
    have e : (((outM L n).view.loc (thr d L) ↦[(outM L n).view.set]{fullShare} ((outM L n).view.writes (Elt F) f0 [⟨Rect.whole _, w⟩])) : sProp 𝕄)
        = oqPiece d L fx n := pointsTo_congr (out_written d L fx ar a n ga gb f0 w hw hl hr v)
    iintro ⟨H1, H2⟩
    isplitl [H1]
    · iapply (Entails.of_eq e); iexact H1
    · iexact H2
  iexists gb
  isplitl [H]
  · iapply (Transfers.Flight_mono countersEmb (thr d L) hD); iexact H
  · iexact R

/-- The result pieces outside the slots before trip `t`: those already written hold the row, the others some contents. -/
def oMix (t n : ℕ) : sProp 𝕄 := if n + 2 < 2 * t then oQ d L fx n else oP (F := F) d L n
theorem oMix_lt {t n : ℕ} (h : n + 2 < 2 * t) : oMix d L fx t n = oQ d L fx n := if_pos h
theorem oMix_ge {t n : ℕ} (h : ¬ n + 2 < 2 * t) : oMix d L fx t n = oP (F := F) d L n := if_neg h
theorem oMix_core (k : ℕ) : bigSep (oCore k) (oMix d L fx k) = bigSep (oCore k) (oMix d L fx (k + 1)) :=
  bigSep_congr fun n hn => by
    have hn' : n + 2 ≠ 2 * k ∧ n + 2 ≠ 2 * k + 1 ∧ n ≠ 2 * k ∧ n ≠ 2 * k + 1 := by
      simp only [oCore, Finset.mem_filter, Finset.mem_range] at hn; exact hn.2
    by_cases h : n + 2 < 2 * k
    · rw [oMix_lt d L fx h, oMix_lt d L fx (by omega)]
    · rw [oMix_ge d L fx h, oMix_ge d L fx (by omega)]
theorem oMix_zero : bigSep (oSet 0) (oMix d L fx 0) = bigSep (Finset.range 18) (oP (F := F) d L) := by
  rw [oSet_zero]; exact bigSep_congr fun n _ => oMix_ge d L fx (by omega)
theorem oMix_end : bigSep (oSet 8) (oMix d L fx 8) = bigSep (oSet 8) (oQ d L fx) :=
  bigSep_congr fun n hn => by
    have hn' : n < 18 ∧ n + 2 ≠ 16 ∧ n + 2 ≠ 17 := by simpa only [oSet, Finset.mem_filter, Finset.mem_range] using hn
    by_cases h : n + 2 < 2 * 8
    · exact oMix_lt d L fx h
    · rw [oMix_ge d L fx h, oP_neg (F := F) d L (by unfold valid; omega), oQ_neg d L fx (by unfold valid; omega)]

/-- The lane-copy loops: before trip `j` the first 16·j elements of the flat staging buffer are the staging row's. -/
def laneV0 (g4 : Buf (Elt F) ((a4).view.loc (thr d L))) (j : ℕ) (_ : PUnit) : sProp 𝕄 :=
  iprop(((a4).view.loc (thr d L) ↦{fullShare} g4) ∗ (∃ g, ((a6).view.loc (thr d L) ↦{fullShare} g) ∗ ⌜Lanes d L a4 a6 g4 g j⌝))
def laneV1 (g5 : Buf (Elt F) ((a5).view.loc (thr d L))) (j : ℕ) (_ : PUnit) : sProp 𝕄 :=
  iprop(((a5).view.loc (thr d L) ↦{fullShare} g5) ∗ (∃ g, ((a7).view.loc (thr d L) ↦{fullShare} g) ∗ ⌜Lanes d L a5 a7 g5 g j⌝))

def invV (t : ℕ) (_ : PUnit) : sProp 𝕄 :=
  iprop(Transfers.MayWaits (thr d L) (none : HIx 22) O
    ∗ (∃ W', ⌜∀ p ∈ W', p ∈ W ∨ p.2 = none⌝ ∗ owes (thr d L) O W')
    ∗ bigSep (xSet t) (xP d L fx) ∗ bigSep (oSet t) (oMix d L fx t)
    ∗ inSlotV d L fx a4 cc6_scratch4.sem (2 * t) ∗ outSlotV d L fx a6 cc6_scratch6.sem (2 * t)
    ∗ inSlotV d L fx a5 cc6_scratch5.sem (2 * t + 1) ∗ outSlotV d L fx a7 cc6_scratch7.sem (2 * t + 1))

/-- After the last trip nothing of the argument row is in a slot: the tile holds all its pieces. -/
theorem xRange_end : bigSep (xSet 8) (xP d L fx) ⊢ bigSep (Finset.range 18) (xP d L fx) := by
  rw [two_out (s := Finset.range 18) (a := 16) (b := 17) (by decide) (by decide) (by decide),
    show ((Finset.range 18).erase 16).erase 17 = xSet 8 by decide]
  iintro H
  isplitr; · iapply (Entails.of_eq (xP_neg d L fx (n := 16) (by unfold valid; omega)).symm); iempintro
  isplitr; · iapply (Entails.of_eq (xP_neg d L fx (n := 17) (by unfold valid; omega)).symm); iempintro
  iexact H
omit [FloatOps F] in
theorem oRange_end (Φ : ℕ → sProp 𝕄) : bigSep (Finset.range 18) Φ = iprop(Φ 14 ∗ Φ 15 ∗ bigSep (oSet 8) Φ) := by
  rw [two_out (s := Finset.range 18) (a := 14) (b := 15) (by decide) (by decide) (by decide),
    show ((Finset.range 18).erase 14).erase 15 = oSet 8 by decide]

/-- What the run starts from and ends with, beside an untouched rest `R`. -/
def runPre (R : sProp 𝕄) : sProp 𝕄 :=
    iprop(Transfers.MayWaits (thr d L) (none : HIx 22) O ∗ owes (thr d L) O W
        ∗ bigSep (Finset.range 18) (xP d L fx) ∗ bigSep (Finset.range 18) (oP (F := F) d L)
        ∗ (∃ g, (a4).view.loc (thr d L) ↦{fullShare} g) ∗ (∃ g, (a5).view.loc (thr d L) ↦{fullShare} g)
        ∗ (∃ g, (a6).view.loc (thr d L) ↦{fullShare} g) ∗ (∃ g, (a7).view.loc (thr d L) ↦{fullShare} g)
        ∗ semVal (thr d L, SemLoc.dma cc6_scratch4.sem) 0 ∗ semVal (thr d L, SemLoc.dma cc6_scratch5.sem) 0
        ∗ semVal (thr d L, SemLoc.dma cc6_scratch6.sem) 0 ∗ semVal (thr d L, SemLoc.dma cc6_scratch7.sem) 0 ∗ R)
def runPost (R : sProp 𝕄) : sProp 𝕄 :=
    iprop(bigSep (Finset.range 18) (xP d L fx) ∗ bigSep (Finset.range 18) (oQ d L fx)
            ∗ (∃ g, (a4).view.loc (thr d L) ↦{fullShare} g) ∗ (∃ g, (a5).view.loc (thr d L) ↦{fullShare} g)
            ∗ (∃ g, (a6).view.loc (thr d L) ↦{fullShare} g) ∗ (∃ g, (a7).view.loc (thr d L) ↦{fullShare} g)
            ∗ semVal (thr d L, SemLoc.dma cc6_scratch4.sem) 0 ∗ semVal (thr d L, SemLoc.dma cc6_scratch5.sem) 0
            ∗ semVal (thr d L, SemLoc.dma cc6_scratch6.sem) 0 ∗ semVal (thr d L, SemLoc.dma cc6_scratch7.sem) 0
            ∗ (∃ W', ⌜∀ p ∈ W', p ∈ W ∨ p.2 = none⌝ ∗ owes (thr d L) O W') ∗ R)

set_option maxHeartbeats 16000000 in
/-- The task's run: from its pieces of the argument row and of the result, the four staging buffers and the four
    semaphores at zero, to the same with every piece of the result holding the row's elements. -/
theorem tile_run (R : sProp 𝕄) :
    runPre d L O W fx R
      ⊢ wp frame (wpE (defs₀ (F := F)) 𝒱₀ (thr d L) none) Set.univ
          (cc6_sc_group L xtW (Memref.isWhole_whole _) oW (Memref.isWhole_whole _) a4 (Memref.isWhole_whole _) a5 (Memref.isWhole_whole _)
            a6 (Memref.isWhole_whole _) a7 (Memref.isWhole_whole _) cc6_scratch4 cc6_scratch5 cc6_scratch6 cc6_scratch7)
          fun _ => runPost d L O W fx R := by
  unfold runPre runPost
  have v0 : valid L 0 := Or.inl (by omega)
  have v1 : valid L 1 := Or.inl (by omega)
  have k6_h7 : k6_cond7 L = 1#1 := cond7_iff L
  iintro ⟨#Hmw, HO, HX, HOut, ⟨%g4, H4⟩, ⟨%g5, H5⟩, ⟨%g6, H6⟩, ⟨%g7, H7⟩, Hs8, Hs9, Hs10, Hs11, HR⟩
  ihave HX := (Entails.of_eq (xRange_split d L fx v0 v1)) $$ HX
  icases HX with ⟨X0, X1, HX⟩
  ihave X0 := (Entails.of_eq (in_congr d L (off_in0 L v0).symm (in_inb L _) (k6_off1_inb L 0) fx)) $$ X0
  ihave X1 := (Entails.of_eq (in_congr d L (off_in1 L v1).symm (in_inb L _) (k6_off1_inb L 1) fx)) $$ X1
  sl_unfold [cc6_sc_group]
  sl_exec
  ihave S8 := (fl_inV d L fx (off_in0 L v0) (k6_off1_inb L 0) v0 a4 cc6_scratch4.sem) $$ [Hs8]
  · iexists _, _
    isplitr
    rotate_left
    · iexact Hs8
    ipureintro; intro y; rfl
  ihave S9 := (fl_inV d L fx (off_in1 L v1) (k6_off1_inb L 1) v1 a5 cc6_scratch5.sem) $$ [Hs9]
  · iexists _, _
    isplitr
    rotate_left
    · iexact Hs9
    ipureintro; intro y; rfl
  sl_for (invV d L O W fx) $$ [HO HX HOut S8 S9 H6 H7 Hs10 Hs11]
  case region =>
    intro (k : Fin k6_t1_loop.trips) acc
    have hk : k.val < 8 := Nat.lt_of_lt_of_eq k.isLt trips1
    unfold invV
    iintro ⟨#Hmw, ⟨%W', %hW', HO⟩, HX, HOut, S8, S10, S9, S11⟩
    by_cases hk1 : 1 ≤ k.val
    · by_cases v3 : valid L (2 * k.val + 3)
      · -- the generic trip: both drains, both pieces worked, both next fetches issued
        have hk6 : k.val ≤ 6 := by unfold valid at v3; omega
        have k6_h1 : k6_cond1 k = 1#1 := (cond1_iff k).mpr (by omega)
        have k6_h2 : k6_cond2 L k = 1#1 := cond2_iff L k
        have k6_h3 : k6_cond3 L k = 1#1 := (cond3_iff L k).mpr (by omega)
        have k6_h4 : k6_cond4 k = 1#1 := (cond4_iff k).mpr (by omega)
        have k6_h5 : k6_cond5 L k = 1#1 := (cond5_iff L k).mpr (by first | (unfold valid big at *; omega) | (unfold big at *; omega) | omega)
        have k6_h6 : k6_cond6 L k = 1#1 := (cond6_iff L k).mpr (by first | (unfold valid big at *; omega) | (unfold big at *; omega) | omega)
        have v0 : valid L (2 * k.val) := by unfold valid big at *; omega
        have v1 : valid L (2 * k.val + 1) := by unfold valid big at *; omega
        have v2 : valid L (2 * k.val + 2) := by unfold valid big at *; omega
        have v3' : valid L (2 * k.val + 3) := by unfold valid big at *; omega
        have hm0 : 2 ≤ 2 * k.val ∧ valid L (2 * k.val - 2) := ⟨by omega, by unfold valid big at *; omega⟩
        have hm1 : 2 ≤ 2 * k.val + 1 ∧ valid L (2 * k.val + 1 - 2) := ⟨by omega, by unfold valid big at *; omega⟩
        ihave S8 := (Entails.of_eq (inSlotV_pos d L fx v0)) $$ S8
        icases S8 with ⟨%g4, %hin4, F8⟩
        ihave S9 := (Entails.of_eq (inSlotV_pos d L fx v1)) $$ S9
        icases S9 with ⟨%g5, %hin5, F9⟩
        ihave S10 := (Entails.of_eq (outSlotV_pos d L fx hm0)) $$ S10
        icases S10 with ⟨%g6, F10, R6⟩
        ihave S11 := (Entails.of_eq (outSlotV_pos d L fx hm1)) $$ S11
        icases S11 with ⟨%g7, F11, R7⟩
        ihave HX := (Entails.of_eq (xSet_out (xP d L fx) k.val hk)) $$ HX
        icases HX with ⟨X2, X3, HX⟩
        ihave X2 := (Entails.of_eq (xP_pos d L fx v2)) $$ X2
        ihave X2 := (Entails.of_eq (in_congr d L (off_6 L k v2).symm (in_inb L _) (k6_off6_inb L k k6_h3) fx)) $$ X2
        ihave X3 := (Entails.of_eq (xP_pos d L fx v3')) $$ X3
        ihave X3 := (Entails.of_eq (in_congr d L (off_11 L k v3').symm (in_inb L _) (k6_off11_inb L k k6_h6) fx)) $$ X3
        ihave HOut := (Entails.of_eq (oSet_out (oMix d L fx k.val) k.val hk)) $$ HOut
        icases HOut with ⟨Y0, Y1, HOut⟩
        ihave Y0 := (Entails.of_eq ((oMix_ge d L fx (t := k.val) (n := 2 * k.val) (by omega)).trans (oP_pos (F := F) d L v0))) $$ Y0
        icases Y0 with ⟨%f0, Y0⟩
        ihave Y0 := (Entails.of_eq (out_congr d L (off_5 L k v0).symm (out_inb L _) (k6_off5_inb L k k6_h2) f0)) $$ Y0
        ihave Y1 := (Entails.of_eq ((oMix_ge d L fx (t := k.val) (n := 2 * k.val + 1) (by omega)).trans (oP_pos (F := F) d L v1))) $$ Y1
        icases Y1 with ⟨%f1, Y1⟩
        ihave Y1 := (Entails.of_eq (out_congr d L (off_10 L k v1).symm (out_inb L _) (k6_off10_inb L k k6_h5) f1)) $$ Y1
        sl_exec
        sl_for (laneV0 d L g4) $$ [F8_dst R6]
        case region =>
          intro (j : Fin k6_t2_loop.trips) _
          unfold laneV0
          iintro ⟨HA, %g, HB, %hl⟩
          sl_exec
          sl_step
          isplitl [HA]; · iexact HA
          iexists _; isplitl [HB]; · iexact HB
          ipureintro; exact lanes_step d L a4 a6 g4 g j _ _ hl
        · unfold laneV0
          isplitl [F8_dst]; · iexact F8_dst
          iexists _; isplitl [R6]; · iexact R6
          ipureintro; exact lanes_zero d L a4 a6 g4 _
        iintro %_ HI
        unfold laneV0
        icases HI with ⟨H4, %g6', H6, %hl6⟩
        have hl6 : Lanes d L a4 a6 g4 g6' 200 := Eq.mp (congrArg (Lanes d L a4 a6 g4 g6') trips2) hl6
        sl_exec
        sl_for (laneV1 d L g5) $$ [F9_dst R7]
        case region =>
          intro (j : Fin k6_t3_loop.trips) _
          unfold laneV1
          iintro ⟨HA, %g, HB, %hl⟩
          sl_exec
          sl_step
          isplitl [HA]; · iexact HA
          iexists _; isplitl [HB]; · iexact HB
          ipureintro; exact lanes_step' d L a5 a7 g5 g j _ _ hl
        · unfold laneV1
          isplitl [F9_dst]; · iexact F9_dst
          iexists _; isplitl [R7]; · iexact R7
          ipureintro; exact lanes_zero d L a5 a7 g5 _
        iintro %_ HI
        unfold laneV1
        icases HI with ⟨H5, %g7', H7, %hl7⟩
        have hl7 : Lanes d L a5 a7 g5 g7' 200 := Eq.mp (congrArg (Lanes d L a5 a7 g5 g7') trips3) hl7
        sl_exec
        sl_step
        isplitr; · iexact Hmw
        isplitl [HO]
        · iexists _; isplitr
          rotate_left
          · iexact HO
          ipureintro; intro p hp
          rcases Finset.mem_insert.mp hp with rfl | hp
          · exact .inr rfl
          rcases Finset.mem_insert.mp hp with rfl | hp
          · exact .inr rfl
          rcases Finset.mem_insert.mp hp with rfl | hp
          · exact .inr rfl
          rcases Finset.mem_insert.mp hp with rfl | hp
          · exact .inr rfl
          exact hW' p hp
        isplitl [HX F8_src F9_src]
        · iapply (Entails.of_eq (xSet_in (xP d L fx) k.val hk).symm)
          isplitl [F8_src]; · iapply (Entails.of_eq (xP_pos d L fx v0).symm); iexact F8_src
          isplitl [F9_src]; · iapply (Entails.of_eq (xP_pos d L fx v1).symm); iexact F9_src
          iexact HX
        isplitl [HOut F10_dst F11_dst]
        · iapply (Entails.of_eq (oSet_in (oMix d L fx (k.val + 1)) k.val hk (by omega)).symm)
          isplitl [F10_dst]; · iapply (Entails.of_eq ((oMix_lt d L fx (t := k.val + 1) (n := 2 * k.val - 2) (by omega)).trans (oQ_pos d L fx hm0.2)).symm); iexact F10_dst
          isplitl [F11_dst]
          · iapply (Entails.of_eq ((oMix_lt d L fx (t := k.val + 1) (n := 2 * k.val - 1) (by omega)).trans (oQ_pos d L fx (n := 2 * k.val - 1) (by have := hm1.2; rwa [show 2 * k.val + 1 - 2 = 2 * k.val - 1 by omega] at this))).symm)
            iapply (Entails.of_eq (congrArg (oqPiece d L fx) (show 2 * k.val + 1 - 2 = 2 * k.val - 1 by omega))); iexact F11_dst
          iapply (Entails.of_eq (oMix_core d L fx k.val)); iexact HOut
        isplitl [F8]
        · iapply (Entails.of_eq (congrArg (inSlotV d L fx a4 cc6_scratch4.sem) (show 2 * k.val + 2 = 2 * (k.val + 1) by ring)))
          iapply (fl_inV d L fx (off_6 L k v2) (k6_off6_inb L k k6_h3) v2 a4 cc6_scratch4.sem); iexists _, _
          isplitr
          rotate_left
          · iexact F8
          ipureintro; intro y; rfl
        isplitl [F10 H6]
        · iapply (Entails.of_eq (congrArg (outSlotV d L fx a6 cc6_scratch6.sem) (show 2 * k.val + 2 = 2 * (k.val + 1) by ring)))
          iapply (fl_outV d L fx (off_5 L k v0) (k6_off5_inb L k k6_h2) v0 a4 a6 cc6_scratch6.sem f0 g4 g6' hl6 hin4); iexists _
          isplitr
          rotate_left
          · isplitl [F10]; · iexact F10
            iexact H6
          ipureintro; intro y; rfl
        isplitl [F9]
        · iapply (Entails.of_eq (congrArg (inSlotV d L fx a5 cc6_scratch5.sem) (show 2 * k.val + 3 = 2 * (k.val + 1) + 1 by ring)))
          iapply (fl_inV d L fx (off_11 L k v3') (k6_off11_inb L k k6_h6) v3' a5 cc6_scratch5.sem); iexists _, _
          isplitr
          rotate_left
          · iexact F9
          ipureintro; intro y; rfl
        · iapply (Entails.of_eq (congrArg (outSlotV d L fx a7 cc6_scratch7.sem) (show 2 * k.val + 1 + 2 = 2 * (k.val + 1) + 1 by ring)))
          iapply (fl_outV d L fx (off_10 L k v1) (k6_off10_inb L k k6_h5) v1 a5 a7 cc6_scratch7.sem f1 g5 g7' hl7 hin5); iexists _
          isplitr
          rotate_left
          · isplitl [F11]; · iexact F11
            iexact H7
          ipureintro; intro y; rfl
      · by_cases h6 : k.val = 6
        · have hb : ¬ big L := fun hb => v3 (Or.inr ⟨by omega, hb⟩)
          -- trip 6 of a tile with fifteen pieces: no sixteenth piece to fetch
          have k6_h1 : k6_cond1 k = 1#1 := (cond1_iff k).mpr (by omega)
          have k6_h2 : k6_cond2 L k = 1#1 := cond2_iff L k
          have k6_h3 : k6_cond3 L k = 1#1 := (cond3_iff L k).mpr (by omega)
          have k6_h4 : k6_cond4 k = 1#1 := (cond4_iff k).mpr (by omega)
          have k6_h5 : k6_cond5 L k = 1#1 := (cond5_iff L k).mpr (by first | (unfold valid big at *; omega) | (unfold big at *; omega) | omega)
          have k6_h6 : ¬ k6_cond6 L k = 1#1 := fun h => absurd ((cond6_iff L k).mp h) (by first | (unfold valid big at *; omega) | (unfold big at *; omega) | omega)
          have v0 : valid L (2 * k.val) := by unfold valid big at *; omega
          have v1 : valid L (2 * k.val + 1) := by unfold valid big at *; omega
          have v2 : valid L (2 * k.val + 2) := by unfold valid big at *; omega
          have v3' : ¬ valid L (2 * k.val + 3) := by unfold valid big at *; omega
          have hm0 : 2 ≤ 2 * k.val ∧ valid L (2 * k.val - 2) := ⟨by omega, by unfold valid big at *; omega⟩
          have hm1 : 2 ≤ 2 * k.val + 1 ∧ valid L (2 * k.val + 1 - 2) := ⟨by omega, by unfold valid big at *; omega⟩
          ihave S8 := (Entails.of_eq (inSlotV_pos d L fx v0)) $$ S8
          icases S8 with ⟨%g4, %hin4, F8⟩
          ihave S9 := (Entails.of_eq (inSlotV_pos d L fx v1)) $$ S9
          icases S9 with ⟨%g5, %hin5, F9⟩
          ihave S10 := (Entails.of_eq (outSlotV_pos d L fx hm0)) $$ S10
          icases S10 with ⟨%g6, F10, R6⟩
          ihave S11 := (Entails.of_eq (outSlotV_pos d L fx hm1)) $$ S11
          icases S11 with ⟨%g7, F11, R7⟩
          ihave HX := (Entails.of_eq (xSet_out (xP d L fx) k.val hk)) $$ HX
          icases HX with ⟨X2, -, HX⟩
          ihave X2 := (Entails.of_eq (xP_pos d L fx v2)) $$ X2
          ihave X2 := (Entails.of_eq (in_congr d L (off_6 L k v2).symm (in_inb L _) (k6_off6_inb L k k6_h3) fx)) $$ X2
          ihave HOut := (Entails.of_eq (oSet_out (oMix d L fx k.val) k.val hk)) $$ HOut
          icases HOut with ⟨Y0, Y1, HOut⟩
          ihave Y0 := (Entails.of_eq ((oMix_ge d L fx (t := k.val) (n := 2 * k.val) (by omega)).trans (oP_pos (F := F) d L v0))) $$ Y0
          icases Y0 with ⟨%f0, Y0⟩
          ihave Y0 := (Entails.of_eq (out_congr d L (off_5 L k v0).symm (out_inb L _) (k6_off5_inb L k k6_h2) f0)) $$ Y0
          ihave Y1 := (Entails.of_eq ((oMix_ge d L fx (t := k.val) (n := 2 * k.val + 1) (by omega)).trans (oP_pos (F := F) d L v1))) $$ Y1
          icases Y1 with ⟨%f1, Y1⟩
          ihave Y1 := (Entails.of_eq (out_congr d L (off_10 L k v1).symm (out_inb L _) (k6_off10_inb L k k6_h5) f1)) $$ Y1
          sl_exec
          sl_for (laneV0 d L g4) $$ [F8_dst R6]
          case region =>
            intro (j : Fin k6_t2_loop.trips) _
            unfold laneV0
            iintro ⟨HA, %g, HB, %hl⟩
            sl_exec
            sl_step
            isplitl [HA]; · iexact HA
            iexists _; isplitl [HB]; · iexact HB
            ipureintro; exact lanes_step d L a4 a6 g4 g j _ _ hl
          · unfold laneV0
            isplitl [F8_dst]; · iexact F8_dst
            iexists _; isplitl [R6]; · iexact R6
            ipureintro; exact lanes_zero d L a4 a6 g4 _
          iintro %_ HI
          unfold laneV0
          icases HI with ⟨H4, %g6', H6, %hl6⟩
          have hl6 : Lanes d L a4 a6 g4 g6' 200 := Eq.mp (congrArg (Lanes d L a4 a6 g4 g6') trips2) hl6
          sl_exec
          sl_for (laneV1 d L g5) $$ [F9_dst R7]
          case region =>
            intro (j : Fin k6_t3_loop.trips) _
            unfold laneV1
            iintro ⟨HA, %g, HB, %hl⟩
            sl_exec
            sl_step
            isplitl [HA]; · iexact HA
            iexists _; isplitl [HB]; · iexact HB
            ipureintro; exact lanes_step' d L a5 a7 g5 g j _ _ hl
          · unfold laneV1
            isplitl [F9_dst]; · iexact F9_dst
            iexists _; isplitl [R7]; · iexact R7
            ipureintro; exact lanes_zero d L a5 a7 g5 _
          iintro %_ HI
          unfold laneV1
          icases HI with ⟨H5, %g7', H7, %hl7⟩
          have hl7 : Lanes d L a5 a7 g5 g7' 200 := Eq.mp (congrArg (Lanes d L a5 a7 g5 g7') trips3) hl7
          sl_exec
          sl_step
          isplitr; · iexact Hmw
          isplitl [HO]
          · iexists _; isplitr
            rotate_left
            · iexact HO
            ipureintro; intro p hp
            rcases Finset.mem_insert.mp hp with rfl | hp
            · exact .inr rfl
            rcases Finset.mem_insert.mp hp with rfl | hp
            · exact .inr rfl
            rcases Finset.mem_insert.mp hp with rfl | hp
            · exact .inr rfl
            rcases Finset.mem_insert.mp hp with rfl | hp
            · exact .inr rfl
            exact hW' p hp
          isplitl [HX F8_src F9_src]
          · iapply (Entails.of_eq (xSet_in (xP d L fx) k.val hk).symm)
            isplitl [F8_src]; · iapply (Entails.of_eq (xP_pos d L fx v0).symm); iexact F8_src
            isplitl [F9_src]; · iapply (Entails.of_eq (xP_pos d L fx v1).symm); iexact F9_src
            iexact HX
          isplitl [HOut F10_dst F11_dst]
          · iapply (Entails.of_eq (oSet_in (oMix d L fx (k.val + 1)) k.val hk (by omega)).symm)
            isplitl [F10_dst]; · iapply (Entails.of_eq ((oMix_lt d L fx (t := k.val + 1) (n := 2 * k.val - 2) (by omega)).trans (oQ_pos d L fx hm0.2)).symm); iexact F10_dst
            isplitl [F11_dst]
            · iapply (Entails.of_eq ((oMix_lt d L fx (t := k.val + 1) (n := 2 * k.val - 1) (by omega)).trans (oQ_pos d L fx (n := 2 * k.val - 1) (by have := hm1.2; rwa [show 2 * k.val + 1 - 2 = 2 * k.val - 1 by omega] at this))).symm)
              iapply (Entails.of_eq (congrArg (oqPiece d L fx) (show 2 * k.val + 1 - 2 = 2 * k.val - 1 by omega))); iexact F11_dst
            iapply (Entails.of_eq (oMix_core d L fx k.val)); iexact HOut
          isplitl [F8]
          · iapply (Entails.of_eq (congrArg (inSlotV d L fx a4 cc6_scratch4.sem) (show 2 * k.val + 2 = 2 * (k.val + 1) by ring)))
            iapply (fl_inV d L fx (off_6 L k v2) (k6_off6_inb L k k6_h3) v2 a4 cc6_scratch4.sem); iexists _, _
            isplitr
            rotate_left
            · iexact F8
            ipureintro; intro y; rfl
          isplitl [F10 H6]
          · iapply (Entails.of_eq (congrArg (outSlotV d L fx a6 cc6_scratch6.sem) (show 2 * k.val + 2 = 2 * (k.val + 1) by ring)))
            iapply (fl_outV d L fx (off_5 L k v0) (k6_off5_inb L k k6_h2) v0 a4 a6 cc6_scratch6.sem f0 g4 g6' hl6 hin4); iexists _
            isplitr
            rotate_left
            · isplitl [F10]; · iexact F10
              iexact H6
            ipureintro; intro y; rfl
          isplitl [H5 F9]
          · iapply (Entails.of_eq (congrArg (inSlotV d L fx a5 cc6_scratch5.sem) (show 2 * k.val + 3 = 2 * (k.val + 1) + 1 by ring)))
            iapply (Entails.of_eq (inSlotV_neg d L fx v3').symm)
            isplitl [H5]; · iexists _; iexact H5
            iexact F9
          · iapply (Entails.of_eq (congrArg (outSlotV d L fx a7 cc6_scratch7.sem) (show 2 * k.val + 1 + 2 = 2 * (k.val + 1) + 1 by ring)))
            iapply (fl_outV d L fx (off_10 L k v1) (k6_off10_inb L k k6_h5) v1 a5 a7 cc6_scratch7.sem f1 g5 g7' hl7 hin5); iexists _
            isplitr
            rotate_left
            · isplitl [F11]; · iexact F11
              iexact H7
            ipureintro; intro y; rfl
        · have h7 : k.val = 7 := by unfold valid at v3; omega
          by_cases hb : big L
          · -- the last trip of a tile with sixteen pieces: nothing more to fetch
            have k6_h1 : k6_cond1 k = 1#1 := (cond1_iff k).mpr (by omega)
            have k6_h2 : k6_cond2 L k = 1#1 := cond2_iff L k
            have k6_h3 : ¬ k6_cond3 L k = 1#1 := fun h => absurd ((cond3_iff L k).mp h) (by omega)
            have k6_h4 : k6_cond4 k = 1#1 := (cond4_iff k).mpr (by omega)
            have k6_h5 : k6_cond5 L k = 1#1 := (cond5_iff L k).mpr (by first | (unfold valid big at *; omega) | (unfold big at *; omega) | omega)
            have k6_h6 : ¬ k6_cond6 L k = 1#1 := fun h => absurd ((cond6_iff L k).mp h) (by first | (unfold valid big at *; omega) | (unfold big at *; omega) | omega)
            have v0 : valid L (2 * k.val) := by unfold valid big at *; omega
            have v1 : valid L (2 * k.val + 1) := by unfold valid big at *; omega
            have v2 : ¬ valid L (2 * k.val + 2) := by unfold valid big at *; omega
            have v3' : ¬ valid L (2 * k.val + 3) := by unfold valid big at *; omega
            have hm0 : 2 ≤ 2 * k.val ∧ valid L (2 * k.val - 2) := ⟨by omega, by unfold valid big at *; omega⟩
            have hm1 : 2 ≤ 2 * k.val + 1 ∧ valid L (2 * k.val + 1 - 2) := ⟨by omega, by unfold valid big at *; omega⟩
            ihave S8 := (Entails.of_eq (inSlotV_pos d L fx v0)) $$ S8
            icases S8 with ⟨%g4, %hin4, F8⟩
            ihave S9 := (Entails.of_eq (inSlotV_pos d L fx v1)) $$ S9
            icases S9 with ⟨%g5, %hin5, F9⟩
            ihave S10 := (Entails.of_eq (outSlotV_pos d L fx hm0)) $$ S10
            icases S10 with ⟨%g6, F10, R6⟩
            ihave S11 := (Entails.of_eq (outSlotV_pos d L fx hm1)) $$ S11
            icases S11 with ⟨%g7, F11, R7⟩
            ihave HX := (Entails.of_eq (xSet_out (xP d L fx) k.val hk)) $$ HX
            icases HX with ⟨-, -, HX⟩
            ihave HOut := (Entails.of_eq (oSet_out (oMix d L fx k.val) k.val hk)) $$ HOut
            icases HOut with ⟨Y0, Y1, HOut⟩
            ihave Y0 := (Entails.of_eq ((oMix_ge d L fx (t := k.val) (n := 2 * k.val) (by omega)).trans (oP_pos (F := F) d L v0))) $$ Y0
            icases Y0 with ⟨%f0, Y0⟩
            ihave Y0 := (Entails.of_eq (out_congr d L (off_5 L k v0).symm (out_inb L _) (k6_off5_inb L k k6_h2) f0)) $$ Y0
            ihave Y1 := (Entails.of_eq ((oMix_ge d L fx (t := k.val) (n := 2 * k.val + 1) (by omega)).trans (oP_pos (F := F) d L v1))) $$ Y1
            icases Y1 with ⟨%f1, Y1⟩
            ihave Y1 := (Entails.of_eq (out_congr d L (off_10 L k v1).symm (out_inb L _) (k6_off10_inb L k k6_h5) f1)) $$ Y1
            sl_exec
            sl_for (laneV0 d L g4) $$ [F8_dst R6]
            case region =>
              intro (j : Fin k6_t2_loop.trips) _
              unfold laneV0
              iintro ⟨HA, %g, HB, %hl⟩
              sl_exec
              sl_step
              isplitl [HA]; · iexact HA
              iexists _; isplitl [HB]; · iexact HB
              ipureintro; exact lanes_step d L a4 a6 g4 g j _ _ hl
            · unfold laneV0
              isplitl [F8_dst]; · iexact F8_dst
              iexists _; isplitl [R6]; · iexact R6
              ipureintro; exact lanes_zero d L a4 a6 g4 _
            iintro %_ HI
            unfold laneV0
            icases HI with ⟨H4, %g6', H6, %hl6⟩
            have hl6 : Lanes d L a4 a6 g4 g6' 200 := Eq.mp (congrArg (Lanes d L a4 a6 g4 g6') trips2) hl6
            sl_exec
            sl_for (laneV1 d L g5) $$ [F9_dst R7]
            case region =>
              intro (j : Fin k6_t3_loop.trips) _
              unfold laneV1
              iintro ⟨HA, %g, HB, %hl⟩
              sl_exec
              sl_step
              isplitl [HA]; · iexact HA
              iexists _; isplitl [HB]; · iexact HB
              ipureintro; exact lanes_step' d L a5 a7 g5 g j _ _ hl
            · unfold laneV1
              isplitl [F9_dst]; · iexact F9_dst
              iexists _; isplitl [R7]; · iexact R7
              ipureintro; exact lanes_zero d L a5 a7 g5 _
            iintro %_ HI
            unfold laneV1
            icases HI with ⟨H5, %g7', H7, %hl7⟩
            have hl7 : Lanes d L a5 a7 g5 g7' 200 := Eq.mp (congrArg (Lanes d L a5 a7 g5 g7') trips3) hl7
            sl_exec
            sl_step
            isplitr; · iexact Hmw
            isplitl [HO]
            · iexists _; isplitr
              rotate_left
              · iexact HO
              ipureintro; intro p hp
              rcases Finset.mem_insert.mp hp with rfl | hp
              · exact .inr rfl
              rcases Finset.mem_insert.mp hp with rfl | hp
              · exact .inr rfl
              rcases Finset.mem_insert.mp hp with rfl | hp
              · exact .inr rfl
              rcases Finset.mem_insert.mp hp with rfl | hp
              · exact .inr rfl
              exact hW' p hp
            isplitl [HX F8_src F9_src]
            · iapply (Entails.of_eq (xSet_in (xP d L fx) k.val hk).symm)
              isplitl [F8_src]; · iapply (Entails.of_eq (xP_pos d L fx v0).symm); iexact F8_src
              isplitl [F9_src]; · iapply (Entails.of_eq (xP_pos d L fx v1).symm); iexact F9_src
              iexact HX
            isplitl [HOut F10_dst F11_dst]
            · iapply (Entails.of_eq (oSet_in (oMix d L fx (k.val + 1)) k.val hk (by omega)).symm)
              isplitl [F10_dst]; · iapply (Entails.of_eq ((oMix_lt d L fx (t := k.val + 1) (n := 2 * k.val - 2) (by omega)).trans (oQ_pos d L fx hm0.2)).symm); iexact F10_dst
              isplitl [F11_dst]
              · iapply (Entails.of_eq ((oMix_lt d L fx (t := k.val + 1) (n := 2 * k.val - 1) (by omega)).trans (oQ_pos d L fx (n := 2 * k.val - 1) (by have := hm1.2; rwa [show 2 * k.val + 1 - 2 = 2 * k.val - 1 by omega] at this))).symm)
                iapply (Entails.of_eq (congrArg (oqPiece d L fx) (show 2 * k.val + 1 - 2 = 2 * k.val - 1 by omega))); iexact F11_dst
              iapply (Entails.of_eq (oMix_core d L fx k.val)); iexact HOut
            isplitl [H4 F8]
            · iapply (Entails.of_eq (congrArg (inSlotV d L fx a4 cc6_scratch4.sem) (show 2 * k.val + 2 = 2 * (k.val + 1) by ring)))
              iapply (Entails.of_eq (inSlotV_neg d L fx v2).symm)
              isplitl [H4]; · iexists _; iexact H4
              iexact F8
            isplitl [F10 H6]
            · iapply (Entails.of_eq (congrArg (outSlotV d L fx a6 cc6_scratch6.sem) (show 2 * k.val + 2 = 2 * (k.val + 1) by ring)))
              iapply (fl_outV d L fx (off_5 L k v0) (k6_off5_inb L k k6_h2) v0 a4 a6 cc6_scratch6.sem f0 g4 g6' hl6 hin4); iexists _
              isplitr
              rotate_left
              · isplitl [F10]; · iexact F10
                iexact H6
              ipureintro; intro y; rfl
            isplitl [H5 F9]
            · iapply (Entails.of_eq (congrArg (inSlotV d L fx a5 cc6_scratch5.sem) (show 2 * k.val + 3 = 2 * (k.val + 1) + 1 by ring)))
              iapply (Entails.of_eq (inSlotV_neg d L fx v3').symm)
              isplitl [H5]; · iexists _; iexact H5
              iexact F9
            · iapply (Entails.of_eq (congrArg (outSlotV d L fx a7 cc6_scratch7.sem) (show 2 * k.val + 1 + 2 = 2 * (k.val + 1) + 1 by ring)))
              iapply (fl_outV d L fx (off_10 L k v1) (k6_off10_inb L k k6_h5) v1 a5 a7 cc6_scratch7.sem f1 g5 g7' hl7 hin5); iexists _
              isplitr
              rotate_left
              · isplitl [F11]; · iexact F11
                iexact H7
              ipureintro; intro y; rfl
          · -- the last trip of a tile with fifteen pieces: the second slot only drains
            have k6_h1 : k6_cond1 k = 1#1 := (cond1_iff k).mpr (by omega)
            have k6_h2 : k6_cond2 L k = 1#1 := cond2_iff L k
            have k6_h3 : ¬ k6_cond3 L k = 1#1 := fun h => absurd ((cond3_iff L k).mp h) (by omega)
            have k6_h4 : k6_cond4 k = 1#1 := (cond4_iff k).mpr (by omega)
            have k6_h5 : ¬ k6_cond5 L k = 1#1 := fun h => absurd ((cond5_iff L k).mp h) (by first | (unfold valid big at *; omega) | (unfold big at *; omega) | omega)
            have k6_h6 : ¬ k6_cond6 L k = 1#1 := fun h => absurd ((cond6_iff L k).mp h) (by first | (unfold valid big at *; omega) | (unfold big at *; omega) | omega)
            have v0 : valid L (2 * k.val) := by unfold valid big at *; omega
            have v1 : ¬ valid L (2 * k.val + 1) := by unfold valid big at *; omega
            have v2 : ¬ valid L (2 * k.val + 2) := by unfold valid big at *; omega
            have v3' : ¬ valid L (2 * k.val + 3) := by unfold valid big at *; omega
            have hm0 : 2 ≤ 2 * k.val ∧ valid L (2 * k.val - 2) := ⟨by omega, by unfold valid big at *; omega⟩
            have hm1 : 2 ≤ 2 * k.val + 1 ∧ valid L (2 * k.val + 1 - 2) := ⟨by omega, by unfold valid big at *; omega⟩
            ihave S8 := (Entails.of_eq (inSlotV_pos d L fx v0)) $$ S8
            icases S8 with ⟨%g4, %hin4, F8⟩
            ihave S9 := (Entails.of_eq (inSlotV_neg d L fx v1)) $$ S9
            icases S9 with ⟨⟨%g5, H5⟩, F9⟩
            ihave S10 := (Entails.of_eq (outSlotV_pos d L fx hm0)) $$ S10
            icases S10 with ⟨%g6, F10, R6⟩
            ihave S11 := (Entails.of_eq (outSlotV_pos d L fx hm1)) $$ S11
            icases S11 with ⟨%g7, F11, R7⟩
            ihave HX := (Entails.of_eq (xSet_out (xP d L fx) k.val hk)) $$ HX
            icases HX with ⟨-, -, HX⟩
            ihave HOut := (Entails.of_eq (oSet_out (oMix d L fx k.val) k.val hk)) $$ HOut
            icases HOut with ⟨Y0, -, HOut⟩
            ihave Y0 := (Entails.of_eq ((oMix_ge d L fx (t := k.val) (n := 2 * k.val) (by omega)).trans (oP_pos (F := F) d L v0))) $$ Y0
            icases Y0 with ⟨%f0, Y0⟩
            ihave Y0 := (Entails.of_eq (out_congr d L (off_5 L k v0).symm (out_inb L _) (k6_off5_inb L k k6_h2) f0)) $$ Y0
            sl_exec
            sl_for (laneV0 d L g4) $$ [F8_dst R6]
            case region =>
              intro (j : Fin k6_t2_loop.trips) _
              unfold laneV0
              iintro ⟨HA, %g, HB, %hl⟩
              sl_exec
              sl_step
              isplitl [HA]; · iexact HA
              iexists _; isplitl [HB]; · iexact HB
              ipureintro; exact lanes_step d L a4 a6 g4 g j _ _ hl
            · unfold laneV0
              isplitl [F8_dst]; · iexact F8_dst
              iexists _; isplitl [R6]; · iexact R6
              ipureintro; exact lanes_zero d L a4 a6 g4 _
            iintro %_ HI
            unfold laneV0
            icases HI with ⟨H4, %g6', H6, %hl6⟩
            have hl6 : Lanes d L a4 a6 g4 g6' 200 := Eq.mp (congrArg (Lanes d L a4 a6 g4 g6') trips2) hl6
            sl_exec
            sl_step
            isplitr; · iexact Hmw
            isplitl [HO]
            · iexists _; isplitr
              rotate_left
              · iexact HO
              ipureintro; intro p hp
              rcases Finset.mem_insert.mp hp with rfl | hp
              · exact .inr rfl
              rcases Finset.mem_insert.mp hp with rfl | hp
              · exact .inr rfl
              rcases Finset.mem_insert.mp hp with rfl | hp
              · exact .inr rfl
              exact hW' p hp
            isplitl [HX F8_src]
            · iapply (Entails.of_eq (xSet_in (xP d L fx) k.val hk).symm)
              isplitl [F8_src]; · iapply (Entails.of_eq (xP_pos d L fx v0).symm); iexact F8_src
              isplitr; · iapply (Entails.of_eq (xP_neg d L fx v1).symm); iempintro
              iexact HX
            isplitl [HOut F10_dst F11_dst]
            · iapply (Entails.of_eq (oSet_in (oMix d L fx (k.val + 1)) k.val hk (by omega)).symm)
              isplitl [F10_dst]; · iapply (Entails.of_eq ((oMix_lt d L fx (t := k.val + 1) (n := 2 * k.val - 2) (by omega)).trans (oQ_pos d L fx hm0.2)).symm); iexact F10_dst
              isplitl [F11_dst]
              · iapply (Entails.of_eq ((oMix_lt d L fx (t := k.val + 1) (n := 2 * k.val - 1) (by omega)).trans (oQ_pos d L fx (n := 2 * k.val - 1) (by have := hm1.2; rwa [show 2 * k.val + 1 - 2 = 2 * k.val - 1 by omega] at this))).symm)
                iapply (Entails.of_eq (congrArg (oqPiece d L fx) (show 2 * k.val + 1 - 2 = 2 * k.val - 1 by omega))); iexact F11_dst
              iapply (Entails.of_eq (oMix_core d L fx k.val)); iexact HOut
            isplitl [H4 F8]
            · iapply (Entails.of_eq (congrArg (inSlotV d L fx a4 cc6_scratch4.sem) (show 2 * k.val + 2 = 2 * (k.val + 1) by ring)))
              iapply (Entails.of_eq (inSlotV_neg d L fx v2).symm)
              isplitl [H4]; · iexists _; iexact H4
              iexact F8
            isplitl [F10 H6]
            · iapply (Entails.of_eq (congrArg (outSlotV d L fx a6 cc6_scratch6.sem) (show 2 * k.val + 2 = 2 * (k.val + 1) by ring)))
              iapply (fl_outV d L fx (off_5 L k v0) (k6_off5_inb L k k6_h2) v0 a4 a6 cc6_scratch6.sem f0 g4 g6' hl6 hin4); iexists _
              isplitr
              rotate_left
              · isplitl [F10]; · iexact F10
                iexact H6
              ipureintro; intro y; rfl
            isplitl [H5 F9]
            · iapply (Entails.of_eq (congrArg (inSlotV d L fx a5 cc6_scratch5.sem) (show 2 * k.val + 3 = 2 * (k.val + 1) + 1 by ring)))
              iapply (Entails.of_eq (inSlotV_neg d L fx v3').symm)
              isplitl [H5]; · iexists _; iexact H5
              iexact F9
            · iapply (Entails.of_eq (outSlotV_neg d L fx (m := 2 * (k.val + 1) + 1) (by intro h; apply v1; have := h.2; rwa [show 2 * (k.val + 1) + 1 - 2 = 2 * k.val + 1 by omega] at this)).symm)
              isplitl [R7]; · iexists _; iexact R7
              iexact F11
    · have hk0 : k.val = 0 := by omega
      -- the first trip: nothing to drain
      have k6_h1 : ¬ k6_cond1 k = 1#1 := fun h => absurd ((cond1_iff k).mp h) (by omega)
      have k6_h2 : k6_cond2 L k = 1#1 := cond2_iff L k
      have k6_h3 : k6_cond3 L k = 1#1 := (cond3_iff L k).mpr (by omega)
      have k6_h4 : ¬ k6_cond4 k = 1#1 := fun h => absurd ((cond4_iff k).mp h) (by omega)
      have k6_h5 : k6_cond5 L k = 1#1 := (cond5_iff L k).mpr (by first | (unfold valid big at *; omega) | (unfold big at *; omega) | omega)
      have k6_h6 : k6_cond6 L k = 1#1 := (cond6_iff L k).mpr (by first | (unfold valid big at *; omega) | (unfold big at *; omega) | omega)
      have v0 : valid L (2 * k.val) := by unfold valid big at *; omega
      have v1 : valid L (2 * k.val + 1) := by unfold valid big at *; omega
      have v2 : valid L (2 * k.val + 2) := by unfold valid big at *; omega
      have v3' : valid L (2 * k.val + 3) := by unfold valid big at *; omega
      have hm0 : ¬ (2 ≤ 2 * k.val ∧ valid L (2 * k.val - 2)) := by omega
      have hm1 : ¬ (2 ≤ 2 * k.val + 1 ∧ valid L (2 * k.val + 1 - 2)) := by omega
      ihave S8 := (Entails.of_eq (inSlotV_pos d L fx v0)) $$ S8
      icases S8 with ⟨%g4, %hin4, F8⟩
      ihave S9 := (Entails.of_eq (inSlotV_pos d L fx v1)) $$ S9
      icases S9 with ⟨%g5, %hin5, F9⟩
      ihave S10 := (Entails.of_eq (outSlotV_neg d L fx hm0)) $$ S10
      icases S10 with ⟨⟨%g6, R6⟩, F10⟩
      ihave S11 := (Entails.of_eq (outSlotV_neg d L fx hm1)) $$ S11
      icases S11 with ⟨⟨%g7, R7⟩, F11⟩
      ihave HX := (Entails.of_eq (xSet_out (xP d L fx) k.val hk)) $$ HX
      icases HX with ⟨X2, X3, HX⟩
      ihave X2 := (Entails.of_eq (xP_pos d L fx v2)) $$ X2
      ihave X2 := (Entails.of_eq (in_congr d L (off_6 L k v2).symm (in_inb L _) (k6_off6_inb L k k6_h3) fx)) $$ X2
      ihave X3 := (Entails.of_eq (xP_pos d L fx v3')) $$ X3
      ihave X3 := (Entails.of_eq (in_congr d L (off_11 L k v3').symm (in_inb L _) (k6_off11_inb L k k6_h6) fx)) $$ X3
      ihave HOut := (Entails.of_eq (oSet_out (oMix d L fx k.val) k.val hk)) $$ HOut
      icases HOut with ⟨Y0, Y1, HOut⟩
      ihave Y0 := (Entails.of_eq ((oMix_ge d L fx (t := k.val) (n := 2 * k.val) (by omega)).trans (oP_pos (F := F) d L v0))) $$ Y0
      icases Y0 with ⟨%f0, Y0⟩
      ihave Y0 := (Entails.of_eq (out_congr d L (off_5 L k v0).symm (out_inb L _) (k6_off5_inb L k k6_h2) f0)) $$ Y0
      ihave Y1 := (Entails.of_eq ((oMix_ge d L fx (t := k.val) (n := 2 * k.val + 1) (by omega)).trans (oP_pos (F := F) d L v1))) $$ Y1
      icases Y1 with ⟨%f1, Y1⟩
      ihave Y1 := (Entails.of_eq (out_congr d L (off_10 L k v1).symm (out_inb L _) (k6_off10_inb L k k6_h5) f1)) $$ Y1
      sl_exec
      sl_for (laneV0 d L g4) $$ [F8_dst R6]
      case region =>
        intro (j : Fin k6_t2_loop.trips) _
        unfold laneV0
        iintro ⟨HA, %g, HB, %hl⟩
        sl_exec
        sl_step
        isplitl [HA]; · iexact HA
        iexists _; isplitl [HB]; · iexact HB
        ipureintro; exact lanes_step d L a4 a6 g4 g j _ _ hl
      · unfold laneV0
        isplitl [F8_dst]; · iexact F8_dst
        iexists _; isplitl [R6]; · iexact R6
        ipureintro; exact lanes_zero d L a4 a6 g4 _
      iintro %_ HI
      unfold laneV0
      icases HI with ⟨H4, %g6', H6, %hl6⟩
      have hl6 : Lanes d L a4 a6 g4 g6' 200 := Eq.mp (congrArg (Lanes d L a4 a6 g4 g6') trips2) hl6
      sl_exec
      sl_for (laneV1 d L g5) $$ [F9_dst R7]
      case region =>
        intro (j : Fin k6_t3_loop.trips) _
        unfold laneV1
        iintro ⟨HA, %g, HB, %hl⟩
        sl_exec
        sl_step
        isplitl [HA]; · iexact HA
        iexists _; isplitl [HB]; · iexact HB
        ipureintro; exact lanes_step' d L a5 a7 g5 g j _ _ hl
      · unfold laneV1
        isplitl [F9_dst]; · iexact F9_dst
        iexists _; isplitl [R7]; · iexact R7
        ipureintro; exact lanes_zero d L a5 a7 g5 _
      iintro %_ HI
      unfold laneV1
      icases HI with ⟨H5, %g7', H7, %hl7⟩
      have hl7 : Lanes d L a5 a7 g5 g7' 200 := Eq.mp (congrArg (Lanes d L a5 a7 g5 g7') trips3) hl7
      sl_exec
      sl_step
      isplitr; · iexact Hmw
      isplitl [HO]
      · iexists _; isplitr
        rotate_left
        · iexact HO
        ipureintro; intro p hp
        rcases Finset.mem_insert.mp hp with rfl | hp
        · exact .inr rfl
        rcases Finset.mem_insert.mp hp with rfl | hp
        · exact .inr rfl
        exact hW' p hp
      isplitl [HX F8_src F9_src]
      · iapply (Entails.of_eq (xSet_in (xP d L fx) k.val hk).symm)
        isplitl [F8_src]; · iapply (Entails.of_eq (xP_pos d L fx v0).symm); iexact F8_src
        isplitl [F9_src]; · iapply (Entails.of_eq (xP_pos d L fx v1).symm); iexact F9_src
        iexact HX
      isplitl [HOut]
      · iapply (Entails.of_eq (congrArg (fun s => bigSep s (oMix d L fx (k.val + 1))) (show oCore k.val = oSet (k.val + 1) by rw [hk0]; decide)))
        iapply (Entails.of_eq (oMix_core d L fx k.val)); iexact HOut
      isplitl [F8]
      · iapply (Entails.of_eq (congrArg (inSlotV d L fx a4 cc6_scratch4.sem) (show 2 * k.val + 2 = 2 * (k.val + 1) by ring)))
        iapply (fl_inV d L fx (off_6 L k v2) (k6_off6_inb L k k6_h3) v2 a4 cc6_scratch4.sem); iexists _, _
        isplitr
        rotate_left
        · iexact F8
        ipureintro; intro y; rfl
      isplitl [F10 H6]
      · iapply (Entails.of_eq (congrArg (outSlotV d L fx a6 cc6_scratch6.sem) (show 2 * k.val + 2 = 2 * (k.val + 1) by ring)))
        iapply (fl_outV d L fx (off_5 L k v0) (k6_off5_inb L k k6_h2) v0 a4 a6 cc6_scratch6.sem f0 g4 g6' hl6 hin4); iexists _
        isplitr
        rotate_left
        · isplitl [F10]; · iexact F10
          iexact H6
        ipureintro; intro y; rfl
      isplitl [F9]
      · iapply (Entails.of_eq (congrArg (inSlotV d L fx a5 cc6_scratch5.sem) (show 2 * k.val + 3 = 2 * (k.val + 1) + 1 by ring)))
        iapply (fl_inV d L fx (off_11 L k v3') (k6_off11_inb L k k6_h6) v3' a5 cc6_scratch5.sem); iexists _, _
        isplitr
        rotate_left
        · iexact F9
        ipureintro; intro y; rfl
      · iapply (Entails.of_eq (congrArg (outSlotV d L fx a7 cc6_scratch7.sem) (show 2 * k.val + 1 + 2 = 2 * (k.val + 1) + 1 by ring)))
        iapply (fl_outV d L fx (off_10 L k v1) (k6_off10_inb L k k6_h5) v1 a5 a7 cc6_scratch7.sem f1 g5 g7' hl7 hin5); iexists _
        isplitr
        rotate_left
        · isplitl [F11]; · iexact F11
          iexact H7
        ipureintro; intro y; rfl
  · unfold invV
    isplitr; · iexact Hmw
    isplitl [HO]
    · iexists W; isplitr
      · ipureintro; exact fun p hp => .inl hp
      · iexact HO
    isplitl [HX]; · iexact HX
    isplitl [HOut]; · iapply (Entails.of_eq (oMix_zero d L fx).symm); iexact HOut
    isplitl [S8]; · iexact S8
    isplitl [H6 Hs10]
    · rw [outSlotV_neg d L fx (by omega)]; isplitl [H6]; · iexists _; iexact H6
      iexact Hs10
    isplitl [S9]; · iexact S9
    rw [outSlotV_neg d L fx (by omega)]; isplitl [H7]; · iexists _; iexact H7
    iexact Hs11
  iintro %acc' HI
  ihave HI := (Entails.of_eq (congrArg (fun t => invV d L O W fx t acc') trips1)) $$ HI
  unfold invV
  icases HI with ⟨-, ⟨%W', %hW', HO⟩, HX, HOut, S8, S10, S9, S11⟩
  have nv16 : ¬ valid L (2 * 8) := by unfold valid; omega
  have nv17 : ¬ valid L (2 * 8 + 1) := by unfold valid; omega
  have hm14 : 2 ≤ 2 * 8 ∧ valid L (2 * 8 - 2) := ⟨by omega, Or.inl (by omega)⟩
  ihave S8 := (Entails.of_eq (inSlotV_neg d L fx nv16)) $$ S8
  icases S8 with ⟨⟨%g4', H4⟩, Hs8⟩
  ihave S9 := (Entails.of_eq (inSlotV_neg d L fx nv17)) $$ S9
  icases S9 with ⟨⟨%g5', H5⟩, Hs9⟩
  ihave S10 := (Entails.of_eq (outSlotV_pos d L fx hm14)) $$ S10
  icases S10 with ⟨%g6', F10, R6⟩
  by_cases hb : big L
  · have k6_h8 : k6_cond8 L = 1#1 := (cond8_iff L).mpr hb
    have hm15 : 2 ≤ 2 * 8 + 1 ∧ valid L (2 * 8 + 1 - 2) := ⟨by omega, Or.inr ⟨by omega, hb⟩⟩
    ihave S11 := (Entails.of_eq (outSlotV_pos d L fx hm15)) $$ S11
    icases S11 with ⟨%g7', F11, R7⟩
    sl_exec
    sl_step
    isplitl [HX]; · iapply (xRange_end d L fx); iexact HX
    isplitl [HOut F10_dst F11_dst]
    · iapply (Entails.of_eq (oRange_end (oQ d L fx)).symm)
      isplitl [F10_dst]; · iapply (Entails.of_eq (oQ_pos d L fx hm14.2).symm); iexact F10_dst
      isplitl [F11_dst]; · iapply (Entails.of_eq (oQ_pos d L fx hm15.2).symm); iexact F11_dst
      iapply (Entails.of_eq (oMix_end d L fx)); iexact HOut
    isplitl [H4]; · iexists _; iexact H4
    isplitl [H5]; · iexists _; iexact H5
    isplitl [R6]; · iexists _; iexact R6
    isplitl [R7]; · iexists _; iexact R7
    isplitl [Hs8]; · iexact Hs8
    isplitl [Hs9]; · iexact Hs9
    isplitl [F10]; · iexact F10
    isplitl [F11]; · iexact F11
    isplitl [HO]
    · iexists _; isplitr
      rotate_left
      · iexact HO
      ipureintro; intro p hp
      rcases Finset.mem_insert.mp hp with rfl | hp
      · exact .inr rfl
      rcases Finset.mem_insert.mp hp with rfl | hp
      · exact .inr rfl
      exact hW' p hp
    iexact HR
  · have k6_h8 : ¬ k6_cond8 L = 1#1 := fun h => hb ((cond8_iff L).mp h)
    have hm15 : ¬ (2 ≤ 2 * 8 + 1 ∧ valid L (2 * 8 + 1 - 2)) := by intro h; have := h.2; unfold valid at this; omega
    ihave S11 := (Entails.of_eq (outSlotV_neg d L fx hm15)) $$ S11
    icases S11 with ⟨⟨%g7', R7⟩, F11⟩
    sl_exec
    sl_step
    isplitl [HX]; · iapply (xRange_end d L fx); iexact HX
    isplitl [HOut F10_dst]
    · iapply (Entails.of_eq (oRange_end (oQ d L fx)).symm)
      isplitl [F10_dst]; · iapply (Entails.of_eq (oQ_pos d L fx hm14.2).symm); iexact F10_dst
      isplitr; · iapply (Entails.of_eq (oQ_neg d L fx (n := 15) (by unfold valid; omega)).symm); iempintro
      iapply (Entails.of_eq (oMix_end d L fx)); iexact HOut
    isplitl [H4]; · iexists _; iexact H4
    isplitl [H5]; · iexists _; iexact H5
    isplitl [R6]; · iexists _; iexact R6
    isplitl [R7]; · iexists _; iexact R7
    isplitl [Hs8]; · iexact Hs8
    isplitl [Hs9]; · iexact Hs9
    isplitl [F10]; · iexact F10
    isplitl [F11]; · iexact F11
    isplitl [HO]
    · iexists _; isplitr
      rotate_left
      · iexact HO
      ipureintro; intro p hp
      rcases Finset.mem_insert.mp hp with rfl | hp
      · exact .inr rfl
      exact hW' p hp
    iexact HR

/-! The subcore's scoped storage: the four staging buffers and the four semaphores of this call, and the rest. -/

abbrev c8 : GSem nD τ sig := (thr d L, SemLoc.dma cc6_scratch4.sem)
abbrev c9 : GSem nD τ sig := (thr d L, SemLoc.dma cc6_scratch5.sem)
abbrev c10 : GSem nD τ sig := (thr d L, SemLoc.dma cc6_scratch6.sem)
abbrev c11 : GSem nD τ sig := (thr d L, SemLoc.dma cc6_scratch7.sem)

omit [FloatOps F] in
theorem ownSems0_V :
    (ownSems0 (thr d L) : sProp 𝕄)
      = iprop(semVal (c8 d L) 0 ∗ semVal (c9 d L) 0 ∗ semVal (c10 d L) 0 ∗ semVal (c11 d L) 0
          ∗ bigSep (((((ownCells (thr d L)).erase (c8 d L)).erase (c9 d L)).erase (c10 d L)).erase (c11 d L)) fun g => semVal g 0) := by
  unfold SparseCore.Cfg.ownSems0
  rw [SparseCore.bigSep_erase' ((mem_ownCells (g := c8 d L)).mpr ⟨rfl, by
      show (SemLoc.dma cc6_scratch4.sem : SemLoc sig).isScoped .scVector = true; decide⟩),
    SparseCore.bigSep_erase' (Finset.mem_erase.mpr ⟨fun e => absurd (Prod.mk.inj e).2 (by decide), (mem_ownCells (g := c9 d L)).mpr ⟨rfl, by
      show (SemLoc.dma cc6_scratch5.sem : SemLoc sig).isScoped .scVector = true; decide⟩⟩),
    SparseCore.bigSep_erase' (Finset.mem_erase.mpr ⟨fun e => absurd (Prod.mk.inj e).2 (by decide), Finset.mem_erase.mpr ⟨fun e => absurd (Prod.mk.inj e).2 (by decide),
      (mem_ownCells (g := c10 d L)).mpr ⟨rfl, by show (SemLoc.dma cc6_scratch6.sem : SemLoc sig).isScoped .scVector = true; decide⟩⟩⟩),
    SparseCore.bigSep_erase' (Finset.mem_erase.mpr ⟨fun e => absurd (Prod.mk.inj e).2 (by decide), Finset.mem_erase.mpr ⟨fun e => absurd (Prod.mk.inj e).2 (by decide),
      Finset.mem_erase.mpr ⟨fun e => absurd (Prod.mk.inj e).2 (by decide),
      (mem_ownCells (g := c11 d L)).mpr ⟨rfl, by show (SemLoc.dma cc6_scratch7.sem : SemLoc sig).isScoped .scVector = true; decide⟩⟩⟩⟩)]

abbrev pV (L : grid6.Coords) : Proc τ := Proc.scVector (cV L) (jV L)

omit [FloatOps F] in
theorem ownBufs_V :
    (ownBufs (thr d L) : sProp 𝕄)
      = iprop((∃ f, (thr d L).loc cc6_scratch0 ↦{fullShare} f) ∗ (∃ f, (thr d L).loc cc6_scratch1 ↦{fullShare} f)
          ∗ (∃ f, (thr d L).loc cc6_scratch2 ↦{fullShare} f) ∗ (∃ f, (thr d L).loc cc6_scratch3 ↦{fullShare} f)
          ∗ bigSep (((((ownRefs (τ := τ) (pV L)).erase ((pV L).devRef cc6_scratch0)).erase ((pV L).devRef cc6_scratch1)).erase
              ((pV L).devRef cc6_scratch2)).erase ((pV L).devRef cc6_scratch3))
              fun b => iprop(∃ f, ((d, b) : Loc nD τ sig) ↦{fullShare} f)) := by
  unfold SparseCore.Cfg.ownBufs
  refine (SparseCore.bigSep_erase' (SparseCore.Cfg.mem_ownRefs_of_owner (p := pV L) (b := (pV L).devRef cc6_scratch0) rfl)).trans ?_
  rw [SparseCore.bigSep_erase' (Finset.mem_erase.mpr ⟨fun e => absurd (Proc.devRef_injective _ e) (show (cc6_scratch1 : Ref sig .scVector) ≠ cc6_scratch0 by decide),
      SparseCore.Cfg.mem_ownRefs_of_owner (p := pV L) (b := (pV L).devRef cc6_scratch1) rfl⟩),
    SparseCore.bigSep_erase' (Finset.mem_erase.mpr ⟨fun e => absurd (Proc.devRef_injective _ e) (show (cc6_scratch2 : Ref sig .scVector) ≠ cc6_scratch1 by decide),
      Finset.mem_erase.mpr ⟨fun e => absurd (Proc.devRef_injective _ e) (show (cc6_scratch2 : Ref sig .scVector) ≠ cc6_scratch0 by decide),
      SparseCore.Cfg.mem_ownRefs_of_owner (p := pV L) (b := (pV L).devRef cc6_scratch2) rfl⟩⟩),
    SparseCore.bigSep_erase' (Finset.mem_erase.mpr ⟨fun e => absurd (Proc.devRef_injective _ e) (show (cc6_scratch3 : Ref sig .scVector) ≠ cc6_scratch2 by decide),
      Finset.mem_erase.mpr ⟨fun e => absurd (Proc.devRef_injective _ e) (show (cc6_scratch3 : Ref sig .scVector) ≠ cc6_scratch1 by decide),
      Finset.mem_erase.mpr ⟨fun e => absurd (Proc.devRef_injective _ e) (show (cc6_scratch3 : Ref sig .scVector) ≠ cc6_scratch0 by decide),
      SparseCore.Cfg.mem_ownRefs_of_owner (p := pV L) (b := (pV L).devRef cc6_scratch3) rfl⟩⟩⟩)]

/-- The rest of the subcore's scoped storage, which the task does not touch. -/
def restR : sProp 𝕄 :=
  iprop((bigSep (((((ownRefs (τ := τ) (pV L)).erase ((pV L).devRef cc6_scratch0)).erase ((pV L).devRef cc6_scratch1)).erase
              ((pV L).devRef cc6_scratch2)).erase ((pV L).devRef cc6_scratch3))
              fun b => iprop(∃ f, ((d, b) : Loc nD τ sig) ↦{fullShare} f))
      ∗ bigSep (((((ownCells (thr d L)).erase (c8 d L)).erase (c9 d L)).erase (c10 d L)).erase (c11 d L)) fun g => semVal g 0)

theorem body_pre (hO : ∀ g, O g none = 0) :
    iprop(levAts (K (F := F)).L (K (F := F)).lev ∗ emp ∗ goRes d L fx ∗ ownBufs (thr d L) ∗ ownSems0 (thr d L) ∗ owes (thr d L) O W)
      ⊢ runPre d L O W fx (restR (F := F) d L) := by
  rw [ownSems0_V, ownBufs_V]
  unfold goRes runPre restR
  iintro ⟨#Hlv, -, ⟨HX, HOut⟩, ⟨H4, H5, H6, H7, Hbufs⟩, ⟨Hs8, Hs9, Hs10, Hs11, Hsems⟩, HO⟩
  ihave Hmw := ((K (F := F)).mayWaits_none (thr := thr d L) hO) $$ Hlv
  isplitr; · iexact Hmw
  isplitl [HO]; · iexact HO
  isplitl [HX]; · iexact HX
  isplitl [HOut]; · iexact HOut
  isplitl [H4]; · iexact H4
  isplitl [H5]; · iexact H5
  isplitl [H6]; · iexact H6
  isplitl [H7]; · iexact H7
  isplitl [Hs8]; · iexact Hs8
  isplitl [Hs9]; · iexact Hs9
  isplitl [Hs10]; · iexact Hs10
  isplitl [Hs11]; · iexact Hs11
  isplitl [Hbufs]; · iexact Hbufs
  iexact Hsems

theorem body_post :
    runPost d L O W fx (restR (F := F) d L)
      ⊢ iprop(tdRes d L fx ∗ ownBufs (thr d L) ∗ ownSems0 (thr d L) ∗ ∃ W', ⌜∀ p ∈ W', p ∈ W ∨ p.2 = none⌝ ∗ owes (thr d L) O W') := by
  rw [ownSems0_V, ownBufs_V]
  unfold tdRes runPost restR
  iintro ⟨HX, HOut, H4, H5, H6, H7, Hs8, Hs9, Hs10, Hs11, HW, Hbufs, Hsems⟩
  isplitl [HX HOut]
  · isplitl [HX]; · iexact HX
    iexact HOut
  isplitl [H4 H5 H6 H7 Hbufs]
  · isplitl [H4]; · iexact H4
    isplitl [H5]; · iexact H5
    isplitl [H6]; · iexact H6
    isplitl [H7]; · iexact H7
    iexact Hbufs
  isplitl [Hs8 Hs9 Hs10 Hs11 Hsems]
  · isplitl [Hs8]; · iexact Hs8
    isplitl [Hs9]; · iexact Hs9
    isplitl [Hs10]; · iexact Hs10
    isplitl [Hs11]; · iexact Hs11
    iexact Hsems
  iexact HW

/-- The task in the launch theorem's shape: from what the call hands the tile and the subcore's scoped storage to
    what the tile hands back and the storage again. -/
theorem tile_body (hF : (K (F := F)).Facts) (hO : ∀ g, O g none = 0) :
    iprop(levAts (K (F := F)).L (K (F := F)).lev ∗ emp ∗ goRes d L fx ∗ scopedBufs (thr d L) ∗ scopedSems0 (thr d L) ∗ owes (thr d L) O W)
      ⊢ wp frame (wpE (defs₀ (F := F)) 𝒱₀ (thr d L) none) Set.univ
          (cc6_sc_group L xtW (Memref.isWhole_whole _) oW (Memref.isWhole_whole _) a4 (Memref.isWhole_whole _) a5 (Memref.isWhole_whole _)
            a6 (Memref.isWhole_whole _) a7 (Memref.isWhole_whole _) cc6_scratch4 cc6_scratch5 cc6_scratch6 cc6_scratch7)
          fun _ => iprop(tdRes d L fx ∗ scopedBufs (thr d L) ∗ scopedSems0 (thr d L)
            ∗ ∃ W', ⌜∀ p ∈ W', p ∈ W ∨ p.2 = none⌝ ∗ owes (thr d L) O W') := by
  rw [(K (F := F)).scopedBufs_V hF d (cV L) (jV L), SparseCore.Cfg.scopedSems0_V (Val := Elt F) d (cV L) (jV L)]
  exact (body_pre d L O W fx hO).trans ((tile_run d L O W fx (restR (F := F) d L)).trans (wp_mono frame _ _ fun _ => body_post d L O W fx))

end Tile

end Cert.Proof.TileK6

end
-- ==== Proof.TileBVal6.lean ====
/-
  What the staging buffers of one vector subcore hold while it copies a piece of 3200 consecutive elements of row 6 of
  the transposed argument into the flat result, read index by index. No program and no ownership here: only the contents.

  A transfer lands the piece in row 0 of an 8 × 3200 staging array (`InRow`: position (0, t) of that row holds element
  (0, pos + t) of the transposed argument, `pos` the piece's first column). A loop of 200 trips copies that row, 16 lanes
  per trip, into the first 3200 elements of a flat staging array of 25600: trip `j` reads the 1 × 16 window at columns
  [16 j, 16 j + 16) of row 0 and writes it, flattened, at elements [16 j, 16 j + 16). After `j` trips the first 16 j
  elements of the flat array are the first 16 j elements of the row (`Lanes`); a trip extends the prefix by 16
  (`lanes_step`: an element below 16 j is outside the window written and keeps its value, an element of the window reads
  the lane written there, which is the row's element at the same column). A second transfer writes the first 3200
  elements of the flat array to the piece of the result at the same `pos`; so every element of that piece of the result
  holds the element of row 6 of the transposed argument at its own position (`out_written`): the composite of the three
  index maps t ↦ (0, pos + t) ↦ (0, t) ↦ t ↦ pos + t is the identity on positions of the row.
-/
import proofs.«206869_g37898791420194_cont_8to1_b_558_20_alg».proof.Proof.TileB6Defs
import proofs.«206869_g37898791420194_cont_8to1_b_558_20_alg».proof.Proof.Spec
import Idealize.ShloMosaic.Lib.WritesUnit
import Idealize.ShloMosaic.Lib.ValueLayout

noncomputable section

namespace Cert.Proof.TileBVal6

open Cert.Proof.TileB6 Cert.Kernel Cert.Kernel.Gen
open Idealize.ShloMosaic Idealize.ShloMosaic.ValueIdx

variable {F : FTy → Type} [FloatOps F]
variable (d : Dev nD) (L : grid6.Coords)
variable (fx : Buf (Elt F) ((Memref.whole main_v0_scv : Memref sig .scVector .hbm S22x1600000 .f32).view.loc (thr d L)))

abbrev rowRect : Rect S8x3200 := Rect.unit (s := S8x3200) ![0, 0] S1x3200.size inb_S8x3200_S1x3200_0_0

/-- row 0 of the staging array is piece n of the argument row -/
def InRow (a : Memref sig .scVector .vmem S8x3200 .f32) (ga : Buf (Elt F) (a.view.loc (thr d L))) (n : ℕ) : Prop :=
  ∀ y : S1x3200.Idx, a.view.read (Elt F) ga (rowRect.emb y) = (inM L n).view.read (Elt F) fx y

theorem inRow_fetch (a : Memref sig .scVector .vmem S8x3200 .f32) (gold : Buf (Elt F) (a.view.loc (thr d L)))
    (w : S1x3200.Idx → Elt F .f32) (n : ℕ) (hw : ∀ y, w y = (inM L n).view.read (Elt F) fx y) :
    InRow d L fx a (a.view.writes (Elt F) gold [⟨rowRect, w⟩]) n :=
  fun y => (View.read_writes_cons_emb a.view gold rowRect w [] y).trans (hw y)

def Lanes (a : Memref sig .scVector .vmem S8x3200 .f32) (b : Memref sig .scVector .vmem S25600 .f32)
    (ga : Buf (Elt F) (a.view.loc (thr d L))) (gb : Buf (Elt F) (b.view.loc (thr d L))) (j : ℕ) : Prop :=
  ∀ (r : ℕ) (hr : r < 3200), r < 16 * j →
    b.view.read (Elt F) gb (ix1 (⟨r, by omega⟩ : Fin 25600)) = a.view.read (Elt F) ga (ix2 (0 : Fin 8) (⟨r, hr⟩ : Fin 3200))

theorem lanes_zero (a : Memref sig .scVector .vmem S8x3200 .f32) (b : Memref sig .scVector .vmem S25600 .f32)
    (ga : Buf (Elt F) (a.view.loc (thr d L))) (gb : Buf (Elt F) (b.view.loc (thr d L))) : Lanes d L a b ga gb 0 := by
  intro r hr h; omega

/-- The 1 × 16 window at column `c` of the staging array, read at lane `t`, is element `(0, c + t)`. -/
theorem idx_window {off : Fin 2 → ℕ} {c : ℕ} (h : off = ![0, c]) (p : ∀ a', off a' + S1x16.size a' ≤ S8x3200.size a')
    (t : Fin 16) (hr : c + t.val < 3200) :
    (Rect.unit (s := S8x3200) off S1x16.size p).toLoadRect.idx (ix2 (0 : Fin 1) t) = ix2 (0 : Fin 8) (⟨c + t.val, hr⟩ : Fin 3200) := by
  subst h
  funext a'; apply Fin.ext
  rw [LoadRect.idx_apply]
  match a' with
  | ⟨0, _⟩ => show 0 + 1 * 0 = 0; omega
  | ⟨1, _⟩ => show c + 1 * t.val = c + t.val; omega

/-- One trip of a lane-copy loop, the offsets given by their closed forms. -/
theorem lanes_step_core (a : Memref sig .scVector .vmem S8x3200 .f32) (b : Memref sig .scVector .vmem S25600 .f32)
    (ga : Buf (Elt F) (a.view.loc (thr d L))) (gb : Buf (Elt F) (b.view.loc (thr d L)))
    (t : ℕ) {off3 : Fin 2 → ℕ} {off4 : Fin 1 → ℕ} (h3 : off3 = ![0, 16 * t]) (h4 : off4 = ![16 * t])
    (p3 : ∀ a', off3 a' + S1x16.size a' ≤ S8x3200.size a') (p4 : ∀ a', off4 a' + S16.size a' ≤ S25600.size a')
    (h : Lanes d L a b ga gb t) :
    Lanes d L a b ga (b.view.writes (Elt F) gb [⟨Rect.unit (s := S25600) off4 S16.size p4,
      shapeCast S16 (a.view.readAt (Elt F) (Rect.unit (s := S8x3200) off3 S1x16.size p3).toLoadRect ga) shapeCasts_S1x16_S16⟩]) (t + 1) := by
  intro r hr hlt
  by_cases hlo : r < 16 * t
  · refine (View.read_writes_cons_unit_of_not_mem b.view gb p4 _ [] _ h4 (0 : Fin 1) (Or.inl ?_)).trans (h r hr hlo)
    show r < 16 * t
    exact hlo
  · have hx : r - 16 * t < 16 := by omega
    refine (View.read_writes_cons_unit_of_mem b.view gb p4 _ [] _ (ix1 (⟨r - 16 * t, hx⟩ : Fin 16)) h4 ?_).trans ?_
    · intro a'
      match a' with
      | ⟨0, _⟩ => show r = 16 * t + (r - 16 * t); omega
    · rw [shapeCast_1a_a_apply, View.readAt_apply, idx_window h3 p3 ⟨r - 16 * t, hx⟩ (by show 16 * t + (r - 16 * t) < 3200; omega)]
      congr 2
      apply Fin.ext
      show 16 * t + (r - 16 * t) = r
      omega

theorem lanes_step (a : Memref sig .scVector .vmem S8x3200 .f32) (b : Memref sig .scVector .vmem S25600 .f32)
    (ga : Buf (Elt F) (a.view.loc (thr d L))) (gb : Buf (Elt F) (b.view.loc (thr d L)))
    (j : Fin k6_t2_loop.trips) (p3 : ∀ a', (k6_off3 j) a' + S1x16.size a' ≤ S8x3200.size a')
    (p4 : ∀ a', (k6_off4 j) a' + S16.size a' ≤ S25600.size a') (h : Lanes d L a b ga gb j.val) :
    Lanes d L a b ga (b.view.writes (Elt F) gb [⟨Rect.unit (s := S25600) (k6_off4 j) S16.size p4,
      k6_pay1 (a.view.readAt (Elt F) (Rect.unit (s := S8x3200) (k6_off3 j) S1x16.size p3).toLoadRect ga)⟩]) (j.val + 1) :=
  lanes_step_core d L a b ga gb j.val (k6_off3_eq j) (k6_off4_eq j) p3 p4 h

theorem lanes_step' (a : Memref sig .scVector .vmem S8x3200 .f32) (b : Memref sig .scVector .vmem S25600 .f32)
    (ga : Buf (Elt F) (a.view.loc (thr d L))) (gb : Buf (Elt F) (b.view.loc (thr d L)))
    (j : Fin k6_t3_loop.trips) (p3 : ∀ a', (k6_off8 j) a' + S1x16.size a' ≤ S8x3200.size a')
    (p4 : ∀ a', (k6_off9 j) a' + S16.size a' ≤ S25600.size a') (h : Lanes d L a b ga gb j.val) :
    Lanes d L a b ga (b.view.writes (Elt F) gb [⟨Rect.unit (s := S25600) (k6_off9 j) S16.size p4,
      k6_pay2 (a.view.readAt (Elt F) (Rect.unit (s := S8x3200) (k6_off8 j) S1x16.size p3).toLoadRect ga)⟩]) (j.val + 1) :=
  lanes_step_core d L a b ga gb j.val (k6_off8_eq j) (k6_off9_eq j) p3 p4 h

/-- Position `y` of the write-out window of the flat staging array is its element `y 0`. -/
theorem stg_emb (y : S3200.Idx) (hy : (y 0).val < 25600) :
    (Rect.unit (s := S25600) ![0] S3200.size inb_S25600_S3200_0).emb y = ix1 (⟨(y 0).val, hy⟩ : Fin 25600) := by
  funext a'; apply Fin.ext
  match a' with
  | ⟨0, _⟩ => show 0 + 1 * (y 0).val = (y 0).val; omega

/-- Position `(0, t)` of row 0 of the staging array is its element `(0, t)`. -/
theorem row_emb (t : Fin 3200) : rowRect.emb (ix2 (0 : Fin 1) t) = ix2 (0 : Fin 8) t := by
  funext a'; apply Fin.ext
  match a' with
  | ⟨0, _⟩ => show 0 + 1 * 0 = 0; omega
  | ⟨1, _⟩ => show 0 + 1 * t.val = t.val; omega

/-- Position `(0, t)` of piece `n` of the argument row is element `(0, pos + t)` of the transposed argument;
    position `y` of piece `n` of the result is element `pos + y 0` of the result. -/
theorem in_emb (n : ℕ) (t : Fin 3200) (h : pos L n + t.val < 1600000) :
    (inM L n).view.emb (ix2 (0 : Fin 1) t) = ix2 (6 : Fin 22) (⟨pos L n + t.val, h⟩ : Fin 1600000) := by
  funext a'; apply Fin.ext
  match a' with
  | ⟨0, _⟩ => show 6 + 1 * 0 = 6; omega
  | ⟨1, _⟩ => show pos L n + 1 * t.val = pos L n + t.val; omega

theorem out_emb (n : ℕ) (y : S3200.Idx) (h : pos L n + (y 0).val < 1600000) :
    (outM L n).view.emb y = ix1 (⟨pos L n + (y 0).val, h⟩ : Fin 1600000) := by
  funext a'; apply Fin.ext
  match a' with
  | ⟨0, _⟩ => show pos L n + 1 * (y 0).val = pos L n + (y 0).val; omega

/-- Both lane-copy loops run 200 trips: 200 · 16 = 3200, the whole row. -/
theorem trips2 : k6_t2_loop.trips = 200 := by decide
theorem trips3 : k6_t3_loop.trips = 200 := by decide

/-- After all its trips a lane-copy loop has copied the whole row. -/
theorem lanes_all (a : Memref sig .scVector .vmem S8x3200 .f32) (b : Memref sig .scVector .vmem S25600 .f32)
    (ga : Buf (Elt F) (a.view.loc (thr d L))) (gb : Buf (Elt F) (b.view.loc (thr d L)))
    (h : Lanes d L a b ga gb k6_t2_loop.trips) : Lanes d L a b ga gb 200 := trips2 ▸ h
theorem lanes_all' (a : Memref sig .scVector .vmem S8x3200 .f32) (b : Memref sig .scVector .vmem S25600 .f32)
    (ga : Buf (Elt F) (a.view.loc (thr d L))) (gb : Buf (Elt F) (b.view.loc (thr d L)))
    (h : Lanes d L a b ga gb k6_t3_loop.trips) : Lanes d L a b ga gb 200 := trips3 ▸ h

/-- The write-out of a piece: the first 3200 elements of the flat staging array, which the 200 lane copies filled from
    row 0 of the staging array, which the fetch filled from piece `n` of row 6 of the transposed argument, land at
    piece `n` of the result, at the same positions of the row. -/
theorem out_written (a : Memref sig .scVector .vmem S8x3200 .f32) (b : Memref sig .scVector .vmem S25600 .f32) (n : ℕ)
    (ga : Buf (Elt F) (a.view.loc (thr d L))) (gb : Buf (Elt F) (b.view.loc (thr d L)))
    (f0 : Buf (Elt F) ((outM L n).view.loc (thr d L))) (w : S3200.Idx → Elt F .f32)
    (hw : ∀ y, w y = (stg b).view.read (Elt F) gb y) (hl : Lanes d L a b ga gb 200) (hr : InRow d L fx a ga n) (hv : valid L n) :
    ∀ i ∈ (outM L n).view.set, ((outM L n).view.writes (Elt F) f0 [⟨Rect.whole _, w⟩]) i = Cert.Spec.row 6 fx i := by
  intro i hi
  obtain ⟨y, -, rfl⟩ := Finset.mem_map.mp hi
  have hy : (y 0).val < 3200 := (y 0).isLt
  have hp : pos L n + (y 0).val < 1600000 := by unfold pos; omega
  have e1 : (outM L n).view.writes (Elt F) f0 [⟨Rect.whole _, w⟩] ((outM L n).view.emb y) = w y := by
    have h := View.read_writes_cons_emb (outM L n).view f0 (Rect.whole _) w [] y
    rw [Rect.emb_whole_apply] at h
    exact (cast_eq _ _).symm.trans ((View.read_apply _ _).symm.trans h)
  have e2 : (stg b).view.read (Elt F) gb y = b.view.read (Elt F) gb (ix1 (⟨(y 0).val, by omega⟩ : Fin 25600)) :=
    congrArg (b.view.read (Elt F) gb) (stg_emb y (by omega))
  have e3 : a.view.read (Elt F) ga (ix2 (0 : Fin 8) (⟨(y 0).val, hy⟩ : Fin 3200))
      = (inM L n).view.read (Elt F) fx (ix2 (0 : Fin 1) (⟨(y 0).val, hy⟩ : Fin 3200)) :=
    (congrArg (a.view.read (Elt F) ga) (row_emb ⟨(y 0).val, hy⟩).symm).trans (hr _)
  have e4 : (inM L n).view.read (Elt F) fx (ix2 (0 : Fin 1) (⟨(y 0).val, hy⟩ : Fin 3200))
      = fx (ix2 (6 : Fin 22) (⟨pos L n + (y 0).val, hp⟩ : Fin 1600000)) :=
    ((View.read_apply _ _).trans (cast_eq _ _)).trans (congrArg fx (in_emb L n ⟨(y 0).val, hy⟩ hp))
  have e5 : Cert.Spec.row 6 fx ((outM L n).view.emb y) = fx (ix2 (6 : Fin 22) (⟨pos L n + (y 0).val, hp⟩ : Fin 1600000)) :=
    (congrArg (Cert.Spec.row 6 fx) (out_emb L n y hp)).trans (Cert.Spec.row_apply 6 fx _)
  exact e1.trans ((hw y).trans (e2.trans ((hl _ hy (by omega)).trans (e3.trans (e4.trans e5.symm)))))

end Cert.Proof.TileBVal6

end
-- ==== Proof.TileB6.lean ====
/-
  One vector subcore's task of copy kernel 6 (counting from 0), run symbolically: the two fetch slots and two write-out slots
  between trips of the main loop (what each transfer in flight will hand back, and what the staging buffers hold), the
  invariant of the main loop and of the two lane-copy loops, and the task's run — from the tile's pieces of row 6 of
  the transposed argument and of the result to the same pieces with the result holding the row's elements.
-/
import proofs.«206869_g37898791420194_cont_8to1_b_558_20_alg».proof.Proof.TileB6Defs
import proofs.«206869_g37898791420194_cont_8to1_b_558_20_alg».proof.Proof.TileBVal6
noncomputable section

namespace Cert.Proof.TileB6

open Cert.Kernel Cert.Kernel.Gen Cert.Proof.TileBVal6
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 22) (Elt F) ℕ UU ℕ
local notation "xtW" => (Memref.whole Cert.Kernel.main_v0_scv : Memref Cert.Kernel.sig Kind.scVector Space.hbm Cert.Kernel.S22x1600000 EltTy.f32)
local notation "oW" => (Memref.whole Cert.Kernel.main_v7_scv : Memref Cert.Kernel.sig Kind.scVector Space.hbm Cert.Kernel.S1600000 EltTy.f32)
local notation "a4" => (Memref.whole Cert.Kernel.cc6_scratch0 : Memref Cert.Kernel.sig Kind.scVector Space.vmem Cert.Kernel.S8x3200 EltTy.f32)
local notation "a5" => (Memref.whole Cert.Kernel.cc6_scratch1 : Memref Cert.Kernel.sig Kind.scVector Space.vmem Cert.Kernel.S8x3200 EltTy.f32)
local notation "a6" => (Memref.whole Cert.Kernel.cc6_scratch2 : Memref Cert.Kernel.sig Kind.scVector Space.vmem Cert.Kernel.S25600 EltTy.f32)
local notation "a7" => (Memref.whole Cert.Kernel.cc6_scratch3 : Memref Cert.Kernel.sig Kind.scVector Space.vmem Cert.Kernel.S25600 EltTy.f32)

variable [FloatOps F]

section Tile

variable (d : Dev nD) (L : grid6.Coords)
variable (O : CellTallies nD τ sig (HIx 22)) (W : Waits sig (HIx 22))
variable (fx : Buf (Elt F) ((xtW).view.loc (thr d L)))

/-- Piece `n` of the result at its final contents. -/
abbrev oqPiece (n : ℕ) : sProp 𝕄 := (outM L n).view.loc (thr d L) ↦[(outM L n).view.set]{fullShare} (Cert.Spec.row 6 fx)
theorem oQ_pos {n : ℕ} (v : valid L n) : oQ d L fx n = oqPiece d L fx n := if_pos v
theorem oQ_neg {n : ℕ} (v : ¬ valid L n) : oQ d L fx n = iprop(emp) := if_neg v

/-- A fetch slot, remembering that the staging row it will hand back holds the piece. -/
def inSlotV (a : Memref sig .scVector .vmem S8x3200 .f32) (sm : DmaSem sig) (n : ℕ) : sProp 𝕄 :=
  if valid L n then
    iprop(∃ g, ⌜InRow d L fx a g n⌝ ∗ Transfers.Flight countersEmb (thr d L) (SemLoc.dma sm) (default : HIx 22) NN
      iprop((a.view.loc (thr d L) ↦{fullShare} g) ∗ xtPiece d L fx n))
  else iprop((∃ g, a.view.loc (thr d L) ↦{fullShare} g) ∗ semVal (thr d L, SemLoc.dma sm) 0)

/-- A write-out slot: the piece in flight will come back holding the row's elements. -/
def outSlotV (a : Memref sig .scVector .vmem S25600 .f32) (sm : DmaSem sig) (m : ℕ) : sProp 𝕄 :=
  if 2 ≤ m ∧ valid L (m - 2) then
    iprop(∃ g, Transfers.Flight countersEmb (thr d L) (SemLoc.dma sm) (default : HIx 22) NN
        iprop(oqPiece d L fx (m - 2) ∗ ((stg a).view.loc (thr d L) ↦[(stg a).view.set]{fullShare} g))
      ∗ (a.view.loc (thr d L) ↦[Finset.univ \ (stg a).view.set]{fullShare} g))
  else iprop((∃ g, a.view.loc (thr d L) ↦{fullShare} g) ∗ semVal (thr d L, SemLoc.dma sm) 0)

theorem inSlotV_pos {a : Memref sig .scVector .vmem S8x3200 .f32} {sm : DmaSem sig} {n : ℕ} (v : valid L n) :
    inSlotV d L fx a sm n = iprop(∃ g, ⌜InRow d L fx a g n⌝ ∗ Transfers.Flight countersEmb (thr d L) (SemLoc.dma sm) (default : HIx 22) NN
      iprop((a.view.loc (thr d L) ↦{fullShare} g) ∗ xtPiece d L fx n)) := by unfold inSlotV; rw [if_pos v]
theorem inSlotV_neg {a : Memref sig .scVector .vmem S8x3200 .f32} {sm : DmaSem sig} {n : ℕ} (v : ¬ valid L n) :
    inSlotV d L fx a sm n = iprop((∃ g, a.view.loc (thr d L) ↦{fullShare} g) ∗ semVal (thr d L, SemLoc.dma sm) 0) := by
  unfold inSlotV; rw [if_neg v]
theorem outSlotV_pos {a : Memref sig .scVector .vmem S25600 .f32} {sm : DmaSem sig} {m : ℕ} (h : 2 ≤ m ∧ valid L (m - 2)) :
    outSlotV d L fx a sm m = iprop(∃ g, Transfers.Flight countersEmb (thr d L) (SemLoc.dma sm) (default : HIx 22) NN
        iprop(oqPiece d L fx (m - 2) ∗ ((stg a).view.loc (thr d L) ↦[(stg a).view.set]{fullShare} g))
      ∗ (a.view.loc (thr d L) ↦[Finset.univ \ (stg a).view.set]{fullShare} g)) := by unfold outSlotV; rw [if_pos h]
theorem outSlotV_neg {a : Memref sig .scVector .vmem S25600 .f32} {sm : DmaSem sig} {m : ℕ} (h : ¬ (2 ≤ m ∧ valid L (m - 2))) :
    outSlotV d L fx a sm m = iprop((∃ g, a.view.loc (thr d L) ↦{fullShare} g) ∗ semVal (thr d L, SemLoc.dma sm) 0) := by
  unfold outSlotV; rw [if_neg h]

/-- A fetch just issued: the staging row will hold what the transfer reads, which is the piece. -/
theorem fl_inV {off : Fin 2 → ℕ} {n : ℕ} (h : off = ![6, pos L n]) (p : ∀ a, off a + S1x3200.size a ≤ S22x1600000.size a) (v : valid L n)
    (a : Memref sig .scVector .vmem S8x3200 .f32) (sm : DmaSem sig) :
    (iprop(∃ (gold : Buf (Elt F) (a.view.loc (thr d L))) (w : S1x3200.Idx → Elt F .f32),
        ⌜∀ y, w y = ((xtW).slice (Rect.unit (s := S22x1600000) off S1x3200.size p) (fun _ => rfl)).view.read (Elt F) fx y⌝
        ∗ Transfers.Flight countersEmb (thr d L) (SemLoc.dma sm) (default : HIx 22) NN
          iprop((a.view.loc (thr d L) ↦{fullShare} a.view.writes (Elt F) gold [⟨rowRect, w⟩])
            ∗ (((xtW).slice (Rect.unit (s := S22x1600000) off S1x3200.size p) (fun _ => rfl)).view.loc (thr d L)
                ↦[((xtW).slice (Rect.unit (s := S22x1600000) off S1x3200.size p) (fun _ => rfl)).view.set]{fullShare} fx))) : sProp 𝕄)
      ⊢ inSlotV d L fx a sm n := by
  subst h
  rw [inSlotV_pos d L fx v]
  iintro ⟨%gold, %w, %hw, H⟩
  iexists _
  isplitr
  · ipureintro; exact inRow_fetch d L fx a gold w n hw
  · iexact H

set_option maxHeartbeats 4000000 in
/-- A write-out just issued from a flat staging buffer whose first 3200 elements are the staging row, itself piece
    `n` of the argument row: the piece of the result will hold the row's elements. -/
theorem fl_outV {off : Fin 1 → ℕ} {n : ℕ} (h : off = ![pos L n]) (p : ∀ a, off a + S3200.size a ≤ S1600000.size a) (v : valid L n)
    (ar : Memref sig .scVector .vmem S8x3200 .f32) (a : Memref sig .scVector .vmem S25600 .f32) (sm : DmaSem sig)
    (f0 : Buf (Elt F) ((oW).view.loc (thr d L))) (ga : Buf (Elt F) (ar.view.loc (thr d L))) (gb : Buf (Elt F) (a.view.loc (thr d L)))
    (hl : Lanes d L ar a ga gb 200) (hr : InRow d L fx ar ga n) :
    (iprop(∃ (w : S3200.Idx → Elt F .f32),
        ⌜∀ y, w y = (stg a).view.read (Elt F) gb y⌝
        ∗ Transfers.Flight countersEmb (thr d L) (SemLoc.dma sm) (default : HIx 22) NN
          iprop((((oW).slice (Rect.unit (s := S1600000) off S3200.size p) (fun _ => rfl)).view.loc (thr d L)
                ↦[((oW).slice (Rect.unit (s := S1600000) off S3200.size p) (fun _ => rfl)).view.set]{fullShare}
                  (((oW).slice (Rect.unit (s := S1600000) off S3200.size p) (fun _ => rfl)).view.writes (Elt F) f0 [⟨Rect.whole _, w⟩]))
            ∗ ((stg a).view.loc (thr d L) ↦[(stg a).view.set]{fullShare} gb))
        ∗ (a.view.loc (thr d L) ↦[Finset.univ \ (stg a).view.set]{fullShare} gb)) : sProp 𝕄)
      ⊢ outSlotV d L fx a sm (n + 2) := by
  subst h
  rw [outSlotV_pos d L fx (m := n + 2) ⟨by omega, by simpa using v⟩]
  iintro ⟨%w, %hw, H, R⟩
  have hD : (iprop(((outM L n).view.loc (thr d L) ↦[(outM L n).view.set]{fullShare} ((outM L n).view.writes (Elt F) f0 [⟨Rect.whole _, w⟩]))
          ∗ ((stg a).view.loc (thr d L) ↦[(stg a).view.set]{fullShare} gb)) : sProp 𝕄)
      ⊢ iprop(oqPiece d L fx (n + 2 - 2) ∗ ((stg a).view.loc (thr d L) ↦[(stg a).view.set]{fullShare} gb)) := by
    rw [Nat.add_sub_cancel]
    have e : (((outM L n).view.loc (thr d L) ↦[(outM L n).view.set]{fullShare} ((outM L n).view.writes (Elt F) f0 [⟨Rect.whole _, w⟩])) : sProp 𝕄)
        = oqPiece d L fx n := pointsTo_congr (out_written d L fx ar a n ga gb f0 w hw hl hr v)
    iintro ⟨H1, H2⟩
    isplitl [H1]
    · iapply (Entails.of_eq e); iexact H1
    · iexact H2
  iexists gb
  isplitl [H]
  · iapply (Transfers.Flight_mono countersEmb (thr d L) hD); iexact H
  · iexact R

/-- The result pieces outside the slots before trip `t`: those already written hold the row, the others some contents. -/
def oMix (t n : ℕ) : sProp 𝕄 := if n + 2 < 2 * t then oQ d L fx n else oP (F := F) d L n
theorem oMix_lt {t n : ℕ} (h : n + 2 < 2 * t) : oMix d L fx t n = oQ d L fx n := if_pos h
theorem oMix_ge {t n : ℕ} (h : ¬ n + 2 < 2 * t) : oMix d L fx t n = oP (F := F) d L n := if_neg h
theorem oMix_core (k : ℕ) : bigSep (oCore k) (oMix d L fx k) = bigSep (oCore k) (oMix d L fx (k + 1)) :=
  bigSep_congr fun n hn => by
    have hn' : n + 2 ≠ 2 * k ∧ n + 2 ≠ 2 * k + 1 ∧ n ≠ 2 * k ∧ n ≠ 2 * k + 1 := by
      simp only [oCore, Finset.mem_filter, Finset.mem_range] at hn; exact hn.2
    by_cases h : n + 2 < 2 * k
    · rw [oMix_lt d L fx h, oMix_lt d L fx (by omega)]
    · rw [oMix_ge d L fx h, oMix_ge d L fx (by omega)]
theorem oMix_zero : bigSep (oSet 0) (oMix d L fx 0) = bigSep (Finset.range 18) (oP (F := F) d L) := by
  rw [oSet_zero]; exact bigSep_congr fun n _ => oMix_ge d L fx (by omega)
theorem oMix_end : bigSep (oSet 8) (oMix d L fx 8) = bigSep (oSet 8) (oQ d L fx) :=
  bigSep_congr fun n hn => by
    have hn' : n < 18 ∧ n + 2 ≠ 16 ∧ n + 2 ≠ 17 := by simpa only [oSet, Finset.mem_filter, Finset.mem_range] using hn
    by_cases h : n + 2 < 2 * 8
    · exact oMix_lt d L fx h
    · rw [oMix_ge d L fx h, oP_neg (F := F) d L (by unfold valid; omega), oQ_neg d L fx (by unfold valid; omega)]

/-- The lane-copy loops: before trip `j` the first 16·j elements of the flat staging buffer are the staging row's. -/
def laneV0 (g4 : Buf (Elt F) ((a4).view.loc (thr d L))) (j : ℕ) (_ : PUnit) : sProp 𝕄 :=
  iprop(((a4).view.loc (thr d L) ↦{fullShare} g4) ∗ (∃ g, ((a6).view.loc (thr d L) ↦{fullShare} g) ∗ ⌜Lanes d L a4 a6 g4 g j⌝))
def laneV1 (g5 : Buf (Elt F) ((a5).view.loc (thr d L))) (j : ℕ) (_ : PUnit) : sProp 𝕄 :=
  iprop(((a5).view.loc (thr d L) ↦{fullShare} g5) ∗ (∃ g, ((a7).view.loc (thr d L) ↦{fullShare} g) ∗ ⌜Lanes d L a5 a7 g5 g j⌝))

def invV (t : ℕ) (_ : PUnit) : sProp 𝕄 :=
  iprop(Transfers.MayWaits (thr d L) (none : HIx 22) O
    ∗ (∃ W', ⌜∀ p ∈ W', p ∈ W ∨ p.2 = none⌝ ∗ owes (thr d L) O W')
    ∗ bigSep (xSet t) (xP d L fx) ∗ bigSep (oSet t) (oMix d L fx t)
    ∗ inSlotV d L fx a4 cc6_scratch4.sem (2 * t) ∗ outSlotV d L fx a6 cc6_scratch6.sem (2 * t)
    ∗ inSlotV d L fx a5 cc6_scratch5.sem (2 * t + 1) ∗ outSlotV d L fx a7 cc6_scratch7.sem (2 * t + 1))

/-- After the last trip nothing of the argument row is in a slot: the tile holds all its pieces. -/
theorem xRange_end : bigSep (xSet 8) (xP d L fx) ⊢ bigSep (Finset.range 18) (xP d L fx) := by
  rw [two_out (s := Finset.range 18) (a := 16) (b := 17) (by decide) (by decide) (by decide),
    show ((Finset.range 18).erase 16).erase 17 = xSet 8 by decide]
  iintro H
  isplitr; · iapply (Entails.of_eq (xP_neg d L fx (n := 16) (by unfold valid; omega)).symm); iempintro
  isplitr; · iapply (Entails.of_eq (xP_neg d L fx (n := 17) (by unfold valid; omega)).symm); iempintro
  iexact H
omit [FloatOps F] in
theorem oRange_end (Φ : ℕ → sProp 𝕄) : bigSep (Finset.range 18) Φ = iprop(Φ 14 ∗ Φ 15 ∗ bigSep (oSet 8) Φ) := by
  rw [two_out (s := Finset.range 18) (a := 14) (b := 15) (by decide) (by decide) (by decide),
    show ((Finset.range 18).erase 14).erase 15 = oSet 8 by decide]

/-- What the run starts from and ends with, beside an untouched rest `R`. -/
def runPre (R : sProp 𝕄) : sProp 𝕄 :=
    iprop(Transfers.MayWaits (thr d L) (none : HIx 22) O ∗ owes (thr d L) O W
        ∗ bigSep (Finset.range 18) (xP d L fx) ∗ bigSep (Finset.range 18) (oP (F := F) d L)
        ∗ (∃ g, (a4).view.loc (thr d L) ↦{fullShare} g) ∗ (∃ g, (a5).view.loc (thr d L) ↦{fullShare} g)
        ∗ (∃ g, (a6).view.loc (thr d L) ↦{fullShare} g) ∗ (∃ g, (a7).view.loc (thr d L) ↦{fullShare} g)
        ∗ semVal (thr d L, SemLoc.dma cc6_scratch4.sem) 0 ∗ semVal (thr d L, SemLoc.dma cc6_scratch5.sem) 0
        ∗ semVal (thr d L, SemLoc.dma cc6_scratch6.sem) 0 ∗ semVal (thr d L, SemLoc.dma cc6_scratch7.sem) 0 ∗ R)
def runPost (R : sProp 𝕄) : sProp 𝕄 :=
    iprop(bigSep (Finset.range 18) (xP d L fx) ∗ bigSep (Finset.range 18) (oQ d L fx)
            ∗ (∃ g, (a4).view.loc (thr d L) ↦{fullShare} g) ∗ (∃ g, (a5).view.loc (thr d L) ↦{fullShare} g)
            ∗ (∃ g, (a6).view.loc (thr d L) ↦{fullShare} g) ∗ (∃ g, (a7).view.loc (thr d L) ↦{fullShare} g)
            ∗ semVal (thr d L, SemLoc.dma cc6_scratch4.sem) 0 ∗ semVal (thr d L, SemLoc.dma cc6_scratch5.sem) 0
            ∗ semVal (thr d L, SemLoc.dma cc6_scratch6.sem) 0 ∗ semVal (thr d L, SemLoc.dma cc6_scratch7.sem) 0
            ∗ (∃ W', ⌜∀ p ∈ W', p ∈ W ∨ p.2 = none⌝ ∗ owes (thr d L) O W') ∗ R)

set_option maxHeartbeats 16000000 in
/-- The task's run: from its pieces of the argument row and of the result, the four staging buffers and the four
    semaphores at zero, to the same with every piece of the result holding the row's elements. -/
theorem tile_run (R : sProp 𝕄) :
    runPre d L O W fx R
      ⊢ wp frame (wpE (defs₀ (F := F)) 𝒱₀ (thr d L) none) Set.univ
          (cc6_sc_group L xtW (Memref.isWhole_whole _) oW (Memref.isWhole_whole _) a4 (Memref.isWhole_whole _) a5 (Memref.isWhole_whole _)
            a6 (Memref.isWhole_whole _) a7 (Memref.isWhole_whole _) cc6_scratch4 cc6_scratch5 cc6_scratch6 cc6_scratch7)
          fun _ => runPost d L O W fx R := by
  unfold runPre runPost
  have v0 : valid L 0 := Or.inl (by omega)
  have v1 : valid L 1 := Or.inl (by omega)
  have k6_h7 : k6_cond7 L = 1#1 := cond7_iff L
  iintro ⟨#Hmw, HO, HX, HOut, ⟨%g4, H4⟩, ⟨%g5, H5⟩, ⟨%g6, H6⟩, ⟨%g7, H7⟩, Hs8, Hs9, Hs10, Hs11, HR⟩
  ihave HX := (Entails.of_eq (xRange_split d L fx v0 v1)) $$ HX
  icases HX with ⟨X0, X1, HX⟩
  ihave X0 := (Entails.of_eq (in_congr d L (off_in0 L v0).symm (in_inb L _) (k6_off1_inb L 0) fx)) $$ X0
  ihave X1 := (Entails.of_eq (in_congr d L (off_in1 L v1).symm (in_inb L _) (k6_off1_inb L 1) fx)) $$ X1
  sl_unfold [cc6_sc_group]
  sl_exec
  ihave S8 := (fl_inV d L fx (off_in0 L v0) (k6_off1_inb L 0) v0 a4 cc6_scratch4.sem) $$ [Hs8]
  · iexists _, _
    isplitr
    rotate_left
    · iexact Hs8
    ipureintro; intro y; rfl
  ihave S9 := (fl_inV d L fx (off_in1 L v1) (k6_off1_inb L 1) v1 a5 cc6_scratch5.sem) $$ [Hs9]
  · iexists _, _
    isplitr
    rotate_left
    · iexact Hs9
    ipureintro; intro y; rfl
  sl_for (invV d L O W fx) $$ [HO HX HOut S8 S9 H6 H7 Hs10 Hs11]
  case region =>
    intro (k : Fin k6_t1_loop.trips) acc
    have hk : k.val < 8 := Nat.lt_of_lt_of_eq k.isLt trips1
    unfold invV
    iintro ⟨#Hmw, ⟨%W', %hW', HO⟩, HX, HOut, S8, S10, S9, S11⟩
    by_cases hk1 : 1 ≤ k.val
    · by_cases v3 : valid L (2 * k.val + 3)
      · -- the generic trip: both drains, both pieces worked, both next fetches issued
        have hk6 : k.val ≤ 6 := by unfold valid at v3; omega
        have k6_h1 : k6_cond1 k = 1#1 := (cond1_iff k).mpr (by omega)
        have k6_h2 : k6_cond2 L k = 1#1 := cond2_iff L k
        have k6_h3 : k6_cond3 L k = 1#1 := (cond3_iff L k).mpr (by omega)
        have k6_h4 : k6_cond4 k = 1#1 := (cond4_iff k).mpr (by omega)
        have k6_h5 : k6_cond5 L k = 1#1 := (cond5_iff L k).mpr (by first | (unfold valid big at *; omega) | (unfold big at *; omega) | omega)
        have k6_h6 : k6_cond6 L k = 1#1 := (cond6_iff L k).mpr (by first | (unfold valid big at *; omega) | (unfold big at *; omega) | omega)
        have v0 : valid L (2 * k.val) := by unfold valid big at *; omega
        have v1 : valid L (2 * k.val + 1) := by unfold valid big at *; omega
        have v2 : valid L (2 * k.val + 2) := by unfold valid big at *; omega
        have v3' : valid L (2 * k.val + 3) := by unfold valid big at *; omega
        have hm0 : 2 ≤ 2 * k.val ∧ valid L (2 * k.val - 2) := ⟨by omega, by unfold valid big at *; omega⟩
        have hm1 : 2 ≤ 2 * k.val + 1 ∧ valid L (2 * k.val + 1 - 2) := ⟨by omega, by unfold valid big at *; omega⟩
        ihave S8 := (Entails.of_eq (inSlotV_pos d L fx v0)) $$ S8
        icases S8 with ⟨%g4, %hin4, F8⟩
        ihave S9 := (Entails.of_eq (inSlotV_pos d L fx v1)) $$ S9
        icases S9 with ⟨%g5, %hin5, F9⟩
        ihave S10 := (Entails.of_eq (outSlotV_pos d L fx hm0)) $$ S10
        icases S10 with ⟨%g6, F10, R6⟩
        ihave S11 := (Entails.of_eq (outSlotV_pos d L fx hm1)) $$ S11
        icases S11 with ⟨%g7, F11, R7⟩
        ihave HX := (Entails.of_eq (xSet_out (xP d L fx) k.val hk)) $$ HX
        icases HX with ⟨X2, X3, HX⟩
        ihave X2 := (Entails.of_eq (xP_pos d L fx v2)) $$ X2
        ihave X2 := (Entails.of_eq (in_congr d L (off_6 L k v2).symm (in_inb L _) (k6_off6_inb L k k6_h3) fx)) $$ X2
        ihave X3 := (Entails.of_eq (xP_pos d L fx v3')) $$ X3
        ihave X3 := (Entails.of_eq (in_congr d L (off_11 L k v3').symm (in_inb L _) (k6_off11_inb L k k6_h6) fx)) $$ X3
        ihave HOut := (Entails.of_eq (oSet_out (oMix d L fx k.val) k.val hk)) $$ HOut
        icases HOut with ⟨Y0, Y1, HOut⟩
        ihave Y0 := (Entails.of_eq ((oMix_ge d L fx (t := k.val) (n := 2 * k.val) (by omega)).trans (oP_pos (F := F) d L v0))) $$ Y0
        icases Y0 with ⟨%f0, Y0⟩
        ihave Y0 := (Entails.of_eq (out_congr d L (off_5 L k v0).symm (out_inb L _) (k6_off5_inb L k k6_h2) f0)) $$ Y0
        ihave Y1 := (Entails.of_eq ((oMix_ge d L fx (t := k.val) (n := 2 * k.val + 1) (by omega)).trans (oP_pos (F := F) d L v1))) $$ Y1
        icases Y1 with ⟨%f1, Y1⟩
        ihave Y1 := (Entails.of_eq (out_congr d L (off_10 L k v1).symm (out_inb L _) (k6_off10_inb L k k6_h5) f1)) $$ Y1
        sl_exec
        sl_for (laneV0 d L g4) $$ [F8_dst R6]
        case region =>
          intro (j : Fin k6_t2_loop.trips) _
          unfold laneV0
          iintro ⟨HA, %g, HB, %hl⟩
          sl_exec
          sl_step
          isplitl [HA]; · iexact HA
          iexists _; isplitl [HB]; · iexact HB
          ipureintro; exact lanes_step d L a4 a6 g4 g j _ _ hl
        · unfold laneV0
          isplitl [F8_dst]; · iexact F8_dst
          iexists _; isplitl [R6]; · iexact R6
          ipureintro; exact lanes_zero d L a4 a6 g4 _
        iintro %_ HI
        unfold laneV0
        icases HI with ⟨H4, %g6', H6, %hl6⟩
        have hl6 : Lanes d L a4 a6 g4 g6' 200 := Eq.mp (congrArg (Lanes d L a4 a6 g4 g6') trips2) hl6
        sl_exec
        sl_for (laneV1 d L g5) $$ [F9_dst R7]
        case region =>
          intro (j : Fin k6_t3_loop.trips) _
          unfold laneV1
          iintro ⟨HA, %g, HB, %hl⟩
          sl_exec
          sl_step
          isplitl [HA]; · iexact HA
          iexists _; isplitl [HB]; · iexact HB
          ipureintro; exact lanes_step' d L a5 a7 g5 g j _ _ hl
        · unfold laneV1
          isplitl [F9_dst]; · iexact F9_dst
          iexists _; isplitl [R7]; · iexact R7
          ipureintro; exact lanes_zero d L a5 a7 g5 _
        iintro %_ HI
        unfold laneV1
        icases HI with ⟨H5, %g7', H7, %hl7⟩
        have hl7 : Lanes d L a5 a7 g5 g7' 200 := Eq.mp (congrArg (Lanes d L a5 a7 g5 g7') trips3) hl7
        sl_exec
        sl_step
        isplitr; · iexact Hmw
        isplitl [HO]
        · iexists _; isplitr
          rotate_left
          · iexact HO
          ipureintro; intro p hp
          rcases Finset.mem_insert.mp hp with rfl | hp
          · exact .inr rfl
          rcases Finset.mem_insert.mp hp with rfl | hp
          · exact .inr rfl
          rcases Finset.mem_insert.mp hp with rfl | hp
          · exact .inr rfl
          rcases Finset.mem_insert.mp hp with rfl | hp
          · exact .inr rfl
          exact hW' p hp
        isplitl [HX F8_src F9_src]
        · iapply (Entails.of_eq (xSet_in (xP d L fx) k.val hk).symm)
          isplitl [F8_src]; · iapply (Entails.of_eq (xP_pos d L fx v0).symm); iexact F8_src
          isplitl [F9_src]; · iapply (Entails.of_eq (xP_pos d L fx v1).symm); iexact F9_src
          iexact HX
        isplitl [HOut F10_dst F11_dst]
        · iapply (Entails.of_eq (oSet_in (oMix d L fx (k.val + 1)) k.val hk (by omega)).symm)
          isplitl [F10_dst]; · iapply (Entails.of_eq ((oMix_lt d L fx (t := k.val + 1) (n := 2 * k.val - 2) (by omega)).trans (oQ_pos d L fx hm0.2)).symm); iexact F10_dst
          isplitl [F11_dst]
          · iapply (Entails.of_eq ((oMix_lt d L fx (t := k.val + 1) (n := 2 * k.val - 1) (by omega)).trans (oQ_pos d L fx (n := 2 * k.val - 1) (by have := hm1.2; rwa [show 2 * k.val + 1 - 2 = 2 * k.val - 1 by omega] at this))).symm)
            iapply (Entails.of_eq (congrArg (oqPiece d L fx) (show 2 * k.val + 1 - 2 = 2 * k.val - 1 by omega))); iexact F11_dst
          iapply (Entails.of_eq (oMix_core d L fx k.val)); iexact HOut
        isplitl [F8]
        · iapply (Entails.of_eq (congrArg (inSlotV d L fx a4 cc6_scratch4.sem) (show 2 * k.val + 2 = 2 * (k.val + 1) by ring)))
          iapply (fl_inV d L fx (off_6 L k v2) (k6_off6_inb L k k6_h3) v2 a4 cc6_scratch4.sem); iexists _, _
          isplitr
          rotate_left
          · iexact F8
          ipureintro; intro y; rfl
        isplitl [F10 H6]
        · iapply (Entails.of_eq (congrArg (outSlotV d L fx a6 cc6_scratch6.sem) (show 2 * k.val + 2 = 2 * (k.val + 1) by ring)))
          iapply (fl_outV d L fx (off_5 L k v0) (k6_off5_inb L k k6_h2) v0 a4 a6 cc6_scratch6.sem f0 g4 g6' hl6 hin4); iexists _
          isplitr
          rotate_left
          · isplitl [F10]; · iexact F10
            iexact H6
          ipureintro; intro y; rfl
        isplitl [F9]
        · iapply (Entails.of_eq (congrArg (inSlotV d L fx a5 cc6_scratch5.sem) (show 2 * k.val + 3 = 2 * (k.val + 1) + 1 by ring)))
          iapply (fl_inV d L fx (off_11 L k v3') (k6_off11_inb L k k6_h6) v3' a5 cc6_scratch5.sem); iexists _, _
          isplitr
          rotate_left
          · iexact F9
          ipureintro; intro y; rfl
        · iapply (Entails.of_eq (congrArg (outSlotV d L fx a7 cc6_scratch7.sem) (show 2 * k.val + 1 + 2 = 2 * (k.val + 1) + 1 by ring)))
          iapply (fl_outV d L fx (off_10 L k v1) (k6_off10_inb L k k6_h5) v1 a5 a7 cc6_scratch7.sem f1 g5 g7' hl7 hin5); iexists _
          isplitr
          rotate_left
          · isplitl [F11]; · iexact F11
            iexact H7
          ipureintro; intro y; rfl
      · by_cases h6 : k.val = 6
        · have hb : ¬ big L := fun hb => v3 (Or.inr ⟨by omega, hb⟩)
          -- trip 6 of a tile with fifteen pieces: no sixteenth piece to fetch
          have k6_h1 : k6_cond1 k = 1#1 := (cond1_iff k).mpr (by omega)
          have k6_h2 : k6_cond2 L k = 1#1 := cond2_iff L k
          have k6_h3 : k6_cond3 L k = 1#1 := (cond3_iff L k).mpr (by omega)
          have k6_h4 : k6_cond4 k = 1#1 := (cond4_iff k).mpr (by omega)
          have k6_h5 : k6_cond5 L k = 1#1 := (cond5_iff L k).mpr (by first | (unfold valid big at *; omega) | (unfold big at *; omega) | omega)
          have k6_h6 : ¬ k6_cond6 L k = 1#1 := fun h => absurd ((cond6_iff L k).mp h) (by first | (unfold valid big at *; omega) | (unfold big at *; omega) | omega)
          have v0 : valid L (2 * k.val) := by unfold valid big at *; omega
          have v1 : valid L (2 * k.val + 1) := by unfold valid big at *; omega
          have v2 : valid L (2 * k.val + 2) := by unfold valid big at *; omega
          have v3' : ¬ valid L (2 * k.val + 3) := by unfold valid big at *; omega
          have hm0 : 2 ≤ 2 * k.val ∧ valid L (2 * k.val - 2) := ⟨by omega, by unfold valid big at *; omega⟩
          have hm1 : 2 ≤ 2 * k.val + 1 ∧ valid L (2 * k.val + 1 - 2) := ⟨by omega, by unfold valid big at *; omega⟩
          ihave S8 := (Entails.of_eq (inSlotV_pos d L fx v0)) $$ S8
          icases S8 with ⟨%g4, %hin4, F8⟩
          ihave S9 := (Entails.of_eq (inSlotV_pos d L fx v1)) $$ S9
          icases S9 with ⟨%g5, %hin5, F9⟩
          ihave S10 := (Entails.of_eq (outSlotV_pos d L fx hm0)) $$ S10
          icases S10 with ⟨%g6, F10, R6⟩
          ihave S11 := (Entails.of_eq (outSlotV_pos d L fx hm1)) $$ S11
          icases S11 with ⟨%g7, F11, R7⟩
          ihave HX := (Entails.of_eq (xSet_out (xP d L fx) k.val hk)) $$ HX
          icases HX with ⟨X2, -, HX⟩
          ihave X2 := (Entails.of_eq (xP_pos d L fx v2)) $$ X2
          ihave X2 := (Entails.of_eq (in_congr d L (off_6 L k v2).symm (in_inb L _) (k6_off6_inb L k k6_h3) fx)) $$ X2
          ihave HOut := (Entails.of_eq (oSet_out (oMix d L fx k.val) k.val hk)) $$ HOut
          icases HOut with ⟨Y0, Y1, HOut⟩
          ihave Y0 := (Entails.of_eq ((oMix_ge d L fx (t := k.val) (n := 2 * k.val) (by omega)).trans (oP_pos (F := F) d L v0))) $$ Y0
          icases Y0 with ⟨%f0, Y0⟩
          ihave Y0 := (Entails.of_eq (out_congr d L (off_5 L k v0).symm (out_inb L _) (k6_off5_inb L k k6_h2) f0)) $$ Y0
          ihave Y1 := (Entails.of_eq ((oMix_ge d L fx (t := k.val) (n := 2 * k.val + 1) (by omega)).trans (oP_pos (F := F) d L v1))) $$ Y1
          icases Y1 with ⟨%f1, Y1⟩
          ihave Y1 := (Entails.of_eq (out_congr d L (off_10 L k v1).symm (out_inb L _) (k6_off10_inb L k k6_h5) f1)) $$ Y1
          sl_exec
          sl_for (laneV0 d L g4) $$ [F8_dst R6]
          case region =>
            intro (j : Fin k6_t2_loop.trips) _
            unfold laneV0
            iintro ⟨HA, %g, HB, %hl⟩
            sl_exec
            sl_step
            isplitl [HA]; · iexact HA
            iexists _; isplitl [HB]; · iexact HB
            ipureintro; exact lanes_step d L a4 a6 g4 g j _ _ hl
          · unfold laneV0
            isplitl [F8_dst]; · iexact F8_dst
            iexists _; isplitl [R6]; · iexact R6
            ipureintro; exact lanes_zero d L a4 a6 g4 _
          iintro %_ HI
          unfold laneV0
          icases HI with ⟨H4, %g6', H6, %hl6⟩
          have hl6 : Lanes d L a4 a6 g4 g6' 200 := Eq.mp (congrArg (Lanes d L a4 a6 g4 g6') trips2) hl6
          sl_exec
          sl_for (laneV1 d L g5) $$ [F9_dst R7]
          case region =>
            intro (j : Fin k6_t3_loop.trips) _
            unfold laneV1
            iintro ⟨HA, %g, HB, %hl⟩
            sl_exec
            sl_step
            isplitl [HA]; · iexact HA
            iexists _; isplitl [HB]; · iexact HB
            ipureintro; exact lanes_step' d L a5 a7 g5 g j _ _ hl
          · unfold laneV1
            isplitl [F9_dst]; · iexact F9_dst
            iexists _; isplitl [R7]; · iexact R7
            ipureintro; exact lanes_zero d L a5 a7 g5 _
          iintro %_ HI
          unfold laneV1
          icases HI with ⟨H5, %g7', H7, %hl7⟩
          have hl7 : Lanes d L a5 a7 g5 g7' 200 := Eq.mp (congrArg (Lanes d L a5 a7 g5 g7') trips3) hl7
          sl_exec
          sl_step
          isplitr; · iexact Hmw
          isplitl [HO]
          · iexists _; isplitr
            rotate_left
            · iexact HO
            ipureintro; intro p hp
            rcases Finset.mem_insert.mp hp with rfl | hp
            · exact .inr rfl
            rcases Finset.mem_insert.mp hp with rfl | hp
            · exact .inr rfl
            rcases Finset.mem_insert.mp hp with rfl | hp
            · exact .inr rfl
            rcases Finset.mem_insert.mp hp with rfl | hp
            · exact .inr rfl
            exact hW' p hp
          isplitl [HX F8_src F9_src]
          · iapply (Entails.of_eq (xSet_in (xP d L fx) k.val hk).symm)
            isplitl [F8_src]; · iapply (Entails.of_eq (xP_pos d L fx v0).symm); iexact F8_src
            isplitl [F9_src]; · iapply (Entails.of_eq (xP_pos d L fx v1).symm); iexact F9_src
            iexact HX
          isplitl [HOut F10_dst F11_dst]
          · iapply (Entails.of_eq (oSet_in (oMix d L fx (k.val + 1)) k.val hk (by omega)).symm)
            isplitl [F10_dst]; · iapply (Entails.of_eq ((oMix_lt d L fx (t := k.val + 1) (n := 2 * k.val - 2) (by omega)).trans (oQ_pos d L fx hm0.2)).symm); iexact F10_dst
            isplitl [F11_dst]
            · iapply (Entails.of_eq ((oMix_lt d L fx (t := k.val + 1) (n := 2 * k.val - 1) (by omega)).trans (oQ_pos d L fx (n := 2 * k.val - 1) (by have := hm1.2; rwa [show 2 * k.val + 1 - 2 = 2 * k.val - 1 by omega] at this))).symm)
              iapply (Entails.of_eq (congrArg (oqPiece d L fx) (show 2 * k.val + 1 - 2 = 2 * k.val - 1 by omega))); iexact F11_dst
            iapply (Entails.of_eq (oMix_core d L fx k.val)); iexact HOut
          isplitl [F8]
          · iapply (Entails.of_eq (congrArg (inSlotV d L fx a4 cc6_scratch4.sem) (show 2 * k.val + 2 = 2 * (k.val + 1) by ring)))
            iapply (fl_inV d L fx (off_6 L k v2) (k6_off6_inb L k k6_h3) v2 a4 cc6_scratch4.sem); iexists _, _
            isplitr
            rotate_left
            · iexact F8
            ipureintro; intro y; rfl
          isplitl [F10 H6]
          · iapply (Entails.of_eq (congrArg (outSlotV d L fx a6 cc6_scratch6.sem) (show 2 * k.val + 2 = 2 * (k.val + 1) by ring)))
            iapply (fl_outV d L fx (off_5 L k v0) (k6_off5_inb L k k6_h2) v0 a4 a6 cc6_scratch6.sem f0 g4 g6' hl6 hin4); iexists _
            isplitr
            rotate_left
            · isplitl [F10]; · iexact F10
              iexact H6
            ipureintro; intro y; rfl
          isplitl [H5 F9]
          · iapply (Entails.of_eq (congrArg (inSlotV d L fx a5 cc6_scratch5.sem) (show 2 * k.val + 3 = 2 * (k.val + 1) + 1 by ring)))
            iapply (Entails.of_eq (inSlotV_neg d L fx v3').symm)
            isplitl [H5]; · iexists _; iexact H5
            iexact F9
          · iapply (Entails.of_eq (congrArg (outSlotV d L fx a7 cc6_scratch7.sem) (show 2 * k.val + 1 + 2 = 2 * (k.val + 1) + 1 by ring)))
            iapply (fl_outV d L fx (off_10 L k v1) (k6_off10_inb L k k6_h5) v1 a5 a7 cc6_scratch7.sem f1 g5 g7' hl7 hin5); iexists _
            isplitr
            rotate_left
            · isplitl [F11]; · iexact F11
              iexact H7
            ipureintro; intro y; rfl
        · have h7 : k.val = 7 := by unfold valid at v3; omega
          by_cases hb : big L
          · -- the last trip of a tile with sixteen pieces: nothing more to fetch
            have k6_h1 : k6_cond1 k = 1#1 := (cond1_iff k).mpr (by omega)
            have k6_h2 : k6_cond2 L k = 1#1 := cond2_iff L k
            have k6_h3 : ¬ k6_cond3 L k = 1#1 := fun h => absurd ((cond3_iff L k).mp h) (by omega)
            have k6_h4 : k6_cond4 k = 1#1 := (cond4_iff k).mpr (by omega)
            have k6_h5 : k6_cond5 L k = 1#1 := (cond5_iff L k).mpr (by first | (unfold valid big at *; omega) | (unfold big at *; omega) | omega)
            have k6_h6 : ¬ k6_cond6 L k = 1#1 := fun h => absurd ((cond6_iff L k).mp h) (by first | (unfold valid big at *; omega) | (unfold big at *; omega) | omega)
            have v0 : valid L (2 * k.val) := by unfold valid big at *; omega
            have v1 : valid L (2 * k.val + 1) := by unfold valid big at *; omega
            have v2 : ¬ valid L (2 * k.val + 2) := by unfold valid big at *; omega
            have v3' : ¬ valid L (2 * k.val + 3) := by unfold valid big at *; omega
            have hm0 : 2 ≤ 2 * k.val ∧ valid L (2 * k.val - 2) := ⟨by omega, by unfold valid big at *; omega⟩
            have hm1 : 2 ≤ 2 * k.val + 1 ∧ valid L (2 * k.val + 1 - 2) := ⟨by omega, by unfold valid big at *; omega⟩
            ihave S8 := (Entails.of_eq (inSlotV_pos d L fx v0)) $$ S8
            icases S8 with ⟨%g4, %hin4, F8⟩
            ihave S9 := (Entails.of_eq (inSlotV_pos d L fx v1)) $$ S9
            icases S9 with ⟨%g5, %hin5, F9⟩
            ihave S10 := (Entails.of_eq (outSlotV_pos d L fx hm0)) $$ S10
            icases S10 with ⟨%g6, F10, R6⟩
            ihave S11 := (Entails.of_eq (outSlotV_pos d L fx hm1)) $$ S11
            icases S11 with ⟨%g7, F11, R7⟩
            ihave HX := (Entails.of_eq (xSet_out (xP d L fx) k.val hk)) $$ HX
            icases HX with ⟨-, -, HX⟩
            ihave HOut := (Entails.of_eq (oSet_out (oMix d L fx k.val) k.val hk)) $$ HOut
            icases HOut with ⟨Y0, Y1, HOut⟩
            ihave Y0 := (Entails.of_eq ((oMix_ge d L fx (t := k.val) (n := 2 * k.val) (by omega)).trans (oP_pos (F := F) d L v0))) $$ Y0
            icases Y0 with ⟨%f0, Y0⟩
            ihave Y0 := (Entails.of_eq (out_congr d L (off_5 L k v0).symm (out_inb L _) (k6_off5_inb L k k6_h2) f0)) $$ Y0
            ihave Y1 := (Entails.of_eq ((oMix_ge d L fx (t := k.val) (n := 2 * k.val + 1) (by omega)).trans (oP_pos (F := F) d L v1))) $$ Y1
            icases Y1 with ⟨%f1, Y1⟩
            ihave Y1 := (Entails.of_eq (out_congr d L (off_10 L k v1).symm (out_inb L _) (k6_off10_inb L k k6_h5) f1)) $$ Y1
            sl_exec
            sl_for (laneV0 d L g4) $$ [F8_dst R6]
            case region =>
              intro (j : Fin k6_t2_loop.trips) _
              unfold laneV0
              iintro ⟨HA, %g, HB, %hl⟩
              sl_exec
              sl_step
              isplitl [HA]; · iexact HA
              iexists _; isplitl [HB]; · iexact HB
              ipureintro; exact lanes_step d L a4 a6 g4 g j _ _ hl
            · unfold laneV0
              isplitl [F8_dst]; · iexact F8_dst
              iexists _; isplitl [R6]; · iexact R6
              ipureintro; exact lanes_zero d L a4 a6 g4 _
            iintro %_ HI
            unfold laneV0
            icases HI with ⟨H4, %g6', H6, %hl6⟩
            have hl6 : Lanes d L a4 a6 g4 g6' 200 := Eq.mp (congrArg (Lanes d L a4 a6 g4 g6') trips2) hl6
            sl_exec
            sl_for (laneV1 d L g5) $$ [F9_dst R7]
            case region =>
              intro (j : Fin k6_t3_loop.trips) _
              unfold laneV1
              iintro ⟨HA, %g, HB, %hl⟩
              sl_exec
              sl_step
              isplitl [HA]; · iexact HA
              iexists _; isplitl [HB]; · iexact HB
              ipureintro; exact lanes_step' d L a5 a7 g5 g j _ _ hl
            · unfold laneV1
              isplitl [F9_dst]; · iexact F9_dst
              iexists _; isplitl [R7]; · iexact R7
              ipureintro; exact lanes_zero d L a5 a7 g5 _
            iintro %_ HI
            unfold laneV1
            icases HI with ⟨H5, %g7', H7, %hl7⟩
            have hl7 : Lanes d L a5 a7 g5 g7' 200 := Eq.mp (congrArg (Lanes d L a5 a7 g5 g7') trips3) hl7
            sl_exec
            sl_step
            isplitr; · iexact Hmw
            isplitl [HO]
            · iexists _; isplitr
              rotate_left
              · iexact HO
              ipureintro; intro p hp
              rcases Finset.mem_insert.mp hp with rfl | hp
              · exact .inr rfl
              rcases Finset.mem_insert.mp hp with rfl | hp
              · exact .inr rfl
              rcases Finset.mem_insert.mp hp with rfl | hp
              · exact .inr rfl
              rcases Finset.mem_insert.mp hp with rfl | hp
              · exact .inr rfl
              exact hW' p hp
            isplitl [HX F8_src F9_src]
            · iapply (Entails.of_eq (xSet_in (xP d L fx) k.val hk).symm)
              isplitl [F8_src]; · iapply (Entails.of_eq (xP_pos d L fx v0).symm); iexact F8_src
              isplitl [F9_src]; · iapply (Entails.of_eq (xP_pos d L fx v1).symm); iexact F9_src
              iexact HX
            isplitl [HOut F10_dst F11_dst]
            · iapply (Entails.of_eq (oSet_in (oMix d L fx (k.val + 1)) k.val hk (by omega)).symm)
              isplitl [F10_dst]; · iapply (Entails.of_eq ((oMix_lt d L fx (t := k.val + 1) (n := 2 * k.val - 2) (by omega)).trans (oQ_pos d L fx hm0.2)).symm); iexact F10_dst
              isplitl [F11_dst]
              · iapply (Entails.of_eq ((oMix_lt d L fx (t := k.val + 1) (n := 2 * k.val - 1) (by omega)).trans (oQ_pos d L fx (n := 2 * k.val - 1) (by have := hm1.2; rwa [show 2 * k.val + 1 - 2 = 2 * k.val - 1 by omega] at this))).symm)
                iapply (Entails.of_eq (congrArg (oqPiece d L fx) (show 2 * k.val + 1 - 2 = 2 * k.val - 1 by omega))); iexact F11_dst
              iapply (Entails.of_eq (oMix_core d L fx k.val)); iexact HOut
            isplitl [H4 F8]
            · iapply (Entails.of_eq (congrArg (inSlotV d L fx a4 cc6_scratch4.sem) (show 2 * k.val + 2 = 2 * (k.val + 1) by ring)))
              iapply (Entails.of_eq (inSlotV_neg d L fx v2).symm)
              isplitl [H4]; · iexists _; iexact H4
              iexact F8
            isplitl [F10 H6]
            · iapply (Entails.of_eq (congrArg (outSlotV d L fx a6 cc6_scratch6.sem) (show 2 * k.val + 2 = 2 * (k.val + 1) by ring)))
              iapply (fl_outV d L fx (off_5 L k v0) (k6_off5_inb L k k6_h2) v0 a4 a6 cc6_scratch6.sem f0 g4 g6' hl6 hin4); iexists _
              isplitr
              rotate_left
              · isplitl [F10]; · iexact F10
                iexact H6
              ipureintro; intro y; rfl
            isplitl [H5 F9]
            · iapply (Entails.of_eq (congrArg (inSlotV d L fx a5 cc6_scratch5.sem) (show 2 * k.val + 3 = 2 * (k.val + 1) + 1 by ring)))
              iapply (Entails.of_eq (inSlotV_neg d L fx v3').symm)
              isplitl [H5]; · iexists _; iexact H5
              iexact F9
            · iapply (Entails.of_eq (congrArg (outSlotV d L fx a7 cc6_scratch7.sem) (show 2 * k.val + 1 + 2 = 2 * (k.val + 1) + 1 by ring)))
              iapply (fl_outV d L fx (off_10 L k v1) (k6_off10_inb L k k6_h5) v1 a5 a7 cc6_scratch7.sem f1 g5 g7' hl7 hin5); iexists _
              isplitr
              rotate_left
              · isplitl [F11]; · iexact F11
                iexact H7
              ipureintro; intro y; rfl
          · -- the last trip of a tile with fifteen pieces: the second slot only drains
            have k6_h1 : k6_cond1 k = 1#1 := (cond1_iff k).mpr (by omega)
            have k6_h2 : k6_cond2 L k = 1#1 := cond2_iff L k
            have k6_h3 : ¬ k6_cond3 L k = 1#1 := fun h => absurd ((cond3_iff L k).mp h) (by omega)
            have k6_h4 : k6_cond4 k = 1#1 := (cond4_iff k).mpr (by omega)
            have k6_h5 : ¬ k6_cond5 L k = 1#1 := fun h => absurd ((cond5_iff L k).mp h) (by first | (unfold valid big at *; omega) | (unfold big at *; omega) | omega)
            have k6_h6 : ¬ k6_cond6 L k = 1#1 := fun h => absurd ((cond6_iff L k).mp h) (by first | (unfold valid big at *; omega) | (unfold big at *; omega) | omega)
            have v0 : valid L (2 * k.val) := by unfold valid big at *; omega
            have v1 : ¬ valid L (2 * k.val + 1) := by unfold valid big at *; omega
            have v2 : ¬ valid L (2 * k.val + 2) := by unfold valid big at *; omega
            have v3' : ¬ valid L (2 * k.val + 3) := by unfold valid big at *; omega
            have hm0 : 2 ≤ 2 * k.val ∧ valid L (2 * k.val - 2) := ⟨by omega, by unfold valid big at *; omega⟩
            have hm1 : 2 ≤ 2 * k.val + 1 ∧ valid L (2 * k.val + 1 - 2) := ⟨by omega, by unfold valid big at *; omega⟩
            ihave S8 := (Entails.of_eq (inSlotV_pos d L fx v0)) $$ S8
            icases S8 with ⟨%g4, %hin4, F8⟩
            ihave S9 := (Entails.of_eq (inSlotV_neg d L fx v1)) $$ S9
            icases S9 with ⟨⟨%g5, H5⟩, F9⟩
            ihave S10 := (Entails.of_eq (outSlotV_pos d L fx hm0)) $$ S10
            icases S10 with ⟨%g6, F10, R6⟩
            ihave S11 := (Entails.of_eq (outSlotV_pos d L fx hm1)) $$ S11
            icases S11 with ⟨%g7, F11, R7⟩
            ihave HX := (Entails.of_eq (xSet_out (xP d L fx) k.val hk)) $$ HX
            icases HX with ⟨-, -, HX⟩
            ihave HOut := (Entails.of_eq (oSet_out (oMix d L fx k.val) k.val hk)) $$ HOut
            icases HOut with ⟨Y0, -, HOut⟩
            ihave Y0 := (Entails.of_eq ((oMix_ge d L fx (t := k.val) (n := 2 * k.val) (by omega)).trans (oP_pos (F := F) d L v0))) $$ Y0
            icases Y0 with ⟨%f0, Y0⟩
            ihave Y0 := (Entails.of_eq (out_congr d L (off_5 L k v0).symm (out_inb L _) (k6_off5_inb L k k6_h2) f0)) $$ Y0
            sl_exec
            sl_for (laneV0 d L g4) $$ [F8_dst R6]
            case region =>
              intro (j : Fin k6_t2_loop.trips) _
              unfold laneV0
              iintro ⟨HA, %g, HB, %hl⟩
              sl_exec
              sl_step
              isplitl [HA]; · iexact HA
              iexists _; isplitl [HB]; · iexact HB
              ipureintro; exact lanes_step d L a4 a6 g4 g j _ _ hl
            · unfold laneV0
              isplitl [F8_dst]; · iexact F8_dst
              iexists _; isplitl [R6]; · iexact R6
              ipureintro; exact lanes_zero d L a4 a6 g4 _
            iintro %_ HI
            unfold laneV0
            icases HI with ⟨H4, %g6', H6, %hl6⟩
            have hl6 : Lanes d L a4 a6 g4 g6' 200 := Eq.mp (congrArg (Lanes d L a4 a6 g4 g6') trips2) hl6
            sl_exec
            sl_step
            isplitr; · iexact Hmw
            isplitl [HO]
            · iexists _; isplitr
              rotate_left
              · iexact HO
              ipureintro; intro p hp
              rcases Finset.mem_insert.mp hp with rfl | hp
              · exact .inr rfl
              rcases Finset.mem_insert.mp hp with rfl | hp
              · exact .inr rfl
              rcases Finset.mem_insert.mp hp with rfl | hp
              · exact .inr rfl
              exact hW' p hp
            isplitl [HX F8_src]
            · iapply (Entails.of_eq (xSet_in (xP d L fx) k.val hk).symm)
              isplitl [F8_src]; · iapply (Entails.of_eq (xP_pos d L fx v0).symm); iexact F8_src
              isplitr; · iapply (Entails.of_eq (xP_neg d L fx v1).symm); iempintro
              iexact HX
            isplitl [HOut F10_dst F11_dst]
            · iapply (Entails.of_eq (oSet_in (oMix d L fx (k.val + 1)) k.val hk (by omega)).symm)
              isplitl [F10_dst]; · iapply (Entails.of_eq ((oMix_lt d L fx (t := k.val + 1) (n := 2 * k.val - 2) (by omega)).trans (oQ_pos d L fx hm0.2)).symm); iexact F10_dst
              isplitl [F11_dst]
              · iapply (Entails.of_eq ((oMix_lt d L fx (t := k.val + 1) (n := 2 * k.val - 1) (by omega)).trans (oQ_pos d L fx (n := 2 * k.val - 1) (by have := hm1.2; rwa [show 2 * k.val + 1 - 2 = 2 * k.val - 1 by omega] at this))).symm)
                iapply (Entails.of_eq (congrArg (oqPiece d L fx) (show 2 * k.val + 1 - 2 = 2 * k.val - 1 by omega))); iexact F11_dst
              iapply (Entails.of_eq (oMix_core d L fx k.val)); iexact HOut
            isplitl [H4 F8]
            · iapply (Entails.of_eq (congrArg (inSlotV d L fx a4 cc6_scratch4.sem) (show 2 * k.val + 2 = 2 * (k.val + 1) by ring)))
              iapply (Entails.of_eq (inSlotV_neg d L fx v2).symm)
              isplitl [H4]; · iexists _; iexact H4
              iexact F8
            isplitl [F10 H6]
            · iapply (Entails.of_eq (congrArg (outSlotV d L fx a6 cc6_scratch6.sem) (show 2 * k.val + 2 = 2 * (k.val + 1) by ring)))
              iapply (fl_outV d L fx (off_5 L k v0) (k6_off5_inb L k k6_h2) v0 a4 a6 cc6_scratch6.sem f0 g4 g6' hl6 hin4); iexists _
              isplitr
              rotate_left
              · isplitl [F10]; · iexact F10
                iexact H6
              ipureintro; intro y; rfl
            isplitl [H5 F9]
            · iapply (Entails.of_eq (congrArg (inSlotV d L fx a5 cc6_scratch5.sem) (show 2 * k.val + 3 = 2 * (k.val + 1) + 1 by ring)))
              iapply (Entails.of_eq (inSlotV_neg d L fx v3').symm)
              isplitl [H5]; · iexists _; iexact H5
              iexact F9
            · iapply (Entails.of_eq (outSlotV_neg d L fx (m := 2 * (k.val + 1) + 1) (by intro h; apply v1; have := h.2; rwa [show 2 * (k.val + 1) + 1 - 2 = 2 * k.val + 1 by omega] at this)).symm)
              isplitl [R7]; · iexists _; iexact R7
              iexact F11
    · have hk0 : k.val = 0 := by omega
      -- the first trip: nothing to drain
      have k6_h1 : ¬ k6_cond1 k = 1#1 := fun h => absurd ((cond1_iff k).mp h) (by omega)
      have k6_h2 : k6_cond2 L k = 1#1 := cond2_iff L k
      have k6_h3 : k6_cond3 L k = 1#1 := (cond3_iff L k).mpr (by omega)
      have k6_h4 : ¬ k6_cond4 k = 1#1 := fun h => absurd ((cond4_iff k).mp h) (by omega)
      have k6_h5 : k6_cond5 L k = 1#1 := (cond5_iff L k).mpr (by first | (unfold valid big at *; omega) | (unfold big at *; omega) | omega)
      have k6_h6 : k6_cond6 L k = 1#1 := (cond6_iff L k).mpr (by first | (unfold valid big at *; omega) | (unfold big at *; omega) | omega)
      have v0 : valid L (2 * k.val) := by unfold valid big at *; omega
      have v1 : valid L (2 * k.val + 1) := by unfold valid big at *; omega
      have v2 : valid L (2 * k.val + 2) := by unfold valid big at *; omega
      have v3' : valid L (2 * k.val + 3) := by unfold valid big at *; omega
      have hm0 : ¬ (2 ≤ 2 * k.val ∧ valid L (2 * k.val - 2)) := by omega
      have hm1 : ¬ (2 ≤ 2 * k.val + 1 ∧ valid L (2 * k.val + 1 - 2)) := by omega
      ihave S8 := (Entails.of_eq (inSlotV_pos d L fx v0)) $$ S8
      icases S8 with ⟨%g4, %hin4, F8⟩
      ihave S9 := (Entails.of_eq (inSlotV_pos d L fx v1)) $$ S9
      icases S9 with ⟨%g5, %hin5, F9⟩
      ihave S10 := (Entails.of_eq (outSlotV_neg d L fx hm0)) $$ S10
      icases S10 with ⟨⟨%g6, R6⟩, F10⟩
      ihave S11 := (Entails.of_eq (outSlotV_neg d L fx hm1)) $$ S11
      icases S11 with ⟨⟨%g7, R7⟩, F11⟩
      ihave HX := (Entails.of_eq (xSet_out (xP d L fx) k.val hk)) $$ HX
      icases HX with ⟨X2, X3, HX⟩
      ihave X2 := (Entails.of_eq (xP_pos d L fx v2)) $$ X2
      ihave X2 := (Entails.of_eq (in_congr d L (off_6 L k v2).symm (in_inb L _) (k6_off6_inb L k k6_h3) fx)) $$ X2
      ihave X3 := (Entails.of_eq (xP_pos d L fx v3')) $$ X3
      ihave X3 := (Entails.of_eq (in_congr d L (off_11 L k v3').symm (in_inb L _) (k6_off11_inb L k k6_h6) fx)) $$ X3
      ihave HOut := (Entails.of_eq (oSet_out (oMix d L fx k.val) k.val hk)) $$ HOut
      icases HOut with ⟨Y0, Y1, HOut⟩
      ihave Y0 := (Entails.of_eq ((oMix_ge d L fx (t := k.val) (n := 2 * k.val) (by omega)).trans (oP_pos (F := F) d L v0))) $$ Y0
      icases Y0 with ⟨%f0, Y0⟩
      ihave Y0 := (Entails.of_eq (out_congr d L (off_5 L k v0).symm (out_inb L _) (k6_off5_inb L k k6_h2) f0)) $$ Y0
      ihave Y1 := (Entails.of_eq ((oMix_ge d L fx (t := k.val) (n := 2 * k.val + 1) (by omega)).trans (oP_pos (F := F) d L v1))) $$ Y1
      icases Y1 with ⟨%f1, Y1⟩
      ihave Y1 := (Entails.of_eq (out_congr d L (off_10 L k v1).symm (out_inb L _) (k6_off10_inb L k k6_h5) f1)) $$ Y1
      sl_exec
      sl_for (laneV0 d L g4) $$ [F8_dst R6]
      case region =>
        intro (j : Fin k6_t2_loop.trips) _
        unfold laneV0
        iintro ⟨HA, %g, HB, %hl⟩
        sl_exec
        sl_step
        isplitl [HA]; · iexact HA
        iexists _; isplitl [HB]; · iexact HB
        ipureintro; exact lanes_step d L a4 a6 g4 g j _ _ hl
      · unfold laneV0
        isplitl [F8_dst]; · iexact F8_dst
        iexists _; isplitl [R6]; · iexact R6
        ipureintro; exact lanes_zero d L a4 a6 g4 _
      iintro %_ HI
      unfold laneV0
      icases HI with ⟨H4, %g6', H6, %hl6⟩
      have hl6 : Lanes d L a4 a6 g4 g6' 200 := Eq.mp (congrArg (Lanes d L a4 a6 g4 g6') trips2) hl6
      sl_exec
      sl_for (laneV1 d L g5) $$ [F9_dst R7]
      case region =>
        intro (j : Fin k6_t3_loop.trips) _
        unfold laneV1
        iintro ⟨HA, %g, HB, %hl⟩
        sl_exec
        sl_step
        isplitl [HA]; · iexact HA
        iexists _; isplitl [HB]; · iexact HB
        ipureintro; exact lanes_step' d L a5 a7 g5 g j _ _ hl
      · unfold laneV1
        isplitl [F9_dst]; · iexact F9_dst
        iexists _; isplitl [R7]; · iexact R7
        ipureintro; exact lanes_zero d L a5 a7 g5 _
      iintro %_ HI
      unfold laneV1
      icases HI with ⟨H5, %g7', H7, %hl7⟩
      have hl7 : Lanes d L a5 a7 g5 g7' 200 := Eq.mp (congrArg (Lanes d L a5 a7 g5 g7') trips3) hl7
      sl_exec
      sl_step
      isplitr; · iexact Hmw
      isplitl [HO]
      · iexists _; isplitr
        rotate_left
        · iexact HO
        ipureintro; intro p hp
        rcases Finset.mem_insert.mp hp with rfl | hp
        · exact .inr rfl
        rcases Finset.mem_insert.mp hp with rfl | hp
        · exact .inr rfl
        exact hW' p hp
      isplitl [HX F8_src F9_src]
      · iapply (Entails.of_eq (xSet_in (xP d L fx) k.val hk).symm)
        isplitl [F8_src]; · iapply (Entails.of_eq (xP_pos d L fx v0).symm); iexact F8_src
        isplitl [F9_src]; · iapply (Entails.of_eq (xP_pos d L fx v1).symm); iexact F9_src
        iexact HX
      isplitl [HOut]
      · iapply (Entails.of_eq (congrArg (fun s => bigSep s (oMix d L fx (k.val + 1))) (show oCore k.val = oSet (k.val + 1) by rw [hk0]; decide)))
        iapply (Entails.of_eq (oMix_core d L fx k.val)); iexact HOut
      isplitl [F8]
      · iapply (Entails.of_eq (congrArg (inSlotV d L fx a4 cc6_scratch4.sem) (show 2 * k.val + 2 = 2 * (k.val + 1) by ring)))
        iapply (fl_inV d L fx (off_6 L k v2) (k6_off6_inb L k k6_h3) v2 a4 cc6_scratch4.sem); iexists _, _
        isplitr
        rotate_left
        · iexact F8
        ipureintro; intro y; rfl
      isplitl [F10 H6]
      · iapply (Entails.of_eq (congrArg (outSlotV d L fx a6 cc6_scratch6.sem) (show 2 * k.val + 2 = 2 * (k.val + 1) by ring)))
        iapply (fl_outV d L fx (off_5 L k v0) (k6_off5_inb L k k6_h2) v0 a4 a6 cc6_scratch6.sem f0 g4 g6' hl6 hin4); iexists _
        isplitr
        rotate_left
        · isplitl [F10]; · iexact F10
          iexact H6
        ipureintro; intro y; rfl
      isplitl [F9]
      · iapply (Entails.of_eq (congrArg (inSlotV d L fx a5 cc6_scratch5.sem) (show 2 * k.val + 3 = 2 * (k.val + 1) + 1 by ring)))
        iapply (fl_inV d L fx (off_11 L k v3') (k6_off11_inb L k k6_h6) v3' a5 cc6_scratch5.sem); iexists _, _
        isplitr
        rotate_left
        · iexact F9
        ipureintro; intro y; rfl
      · iapply (Entails.of_eq (congrArg (outSlotV d L fx a7 cc6_scratch7.sem) (show 2 * k.val + 1 + 2 = 2 * (k.val + 1) + 1 by ring)))
        iapply (fl_outV d L fx (off_10 L k v1) (k6_off10_inb L k k6_h5) v1 a5 a7 cc6_scratch7.sem f1 g5 g7' hl7 hin5); iexists _
        isplitr
        rotate_left
        · isplitl [F11]; · iexact F11
          iexact H7
        ipureintro; intro y; rfl
  · unfold invV
    isplitr; · iexact Hmw
    isplitl [HO]
    · iexists W; isplitr
      · ipureintro; exact fun p hp => .inl hp
      · iexact HO
    isplitl [HX]; · iexact HX
    isplitl [HOut]; · iapply (Entails.of_eq (oMix_zero d L fx).symm); iexact HOut
    isplitl [S8]; · iexact S8
    isplitl [H6 Hs10]
    · rw [outSlotV_neg d L fx (by omega)]; isplitl [H6]; · iexists _; iexact H6
      iexact Hs10
    isplitl [S9]; · iexact S9
    rw [outSlotV_neg d L fx (by omega)]; isplitl [H7]; · iexists _; iexact H7
    iexact Hs11
  iintro %acc' HI
  ihave HI := (Entails.of_eq (congrArg (fun t => invV d L O W fx t acc') trips1)) $$ HI
  unfold invV
  icases HI with ⟨-, ⟨%W', %hW', HO⟩, HX, HOut, S8, S10, S9, S11⟩
  have nv16 : ¬ valid L (2 * 8) := by unfold valid; omega
  have nv17 : ¬ valid L (2 * 8 + 1) := by unfold valid; omega
  have hm14 : 2 ≤ 2 * 8 ∧ valid L (2 * 8 - 2) := ⟨by omega, Or.inl (by omega)⟩
  ihave S8 := (Entails.of_eq (inSlotV_neg d L fx nv16)) $$ S8
  icases S8 with ⟨⟨%g4', H4⟩, Hs8⟩
  ihave S9 := (Entails.of_eq (inSlotV_neg d L fx nv17)) $$ S9
  icases S9 with ⟨⟨%g5', H5⟩, Hs9⟩
  ihave S10 := (Entails.of_eq (outSlotV_pos d L fx hm14)) $$ S10
  icases S10 with ⟨%g6', F10, R6⟩
  by_cases hb : big L
  · have k6_h8 : k6_cond8 L = 1#1 := (cond8_iff L).mpr hb
    have hm15 : 2 ≤ 2 * 8 + 1 ∧ valid L (2 * 8 + 1 - 2) := ⟨by omega, Or.inr ⟨by omega, hb⟩⟩
    ihave S11 := (Entails.of_eq (outSlotV_pos d L fx hm15)) $$ S11
    icases S11 with ⟨%g7', F11, R7⟩
    sl_exec
    sl_step
    isplitl [HX]; · iapply (xRange_end d L fx); iexact HX
    isplitl [HOut F10_dst F11_dst]
    · iapply (Entails.of_eq (oRange_end (oQ d L fx)).symm)
      isplitl [F10_dst]; · iapply (Entails.of_eq (oQ_pos d L fx hm14.2).symm); iexact F10_dst
      isplitl [F11_dst]; · iapply (Entails.of_eq (oQ_pos d L fx hm15.2).symm); iexact F11_dst
      iapply (Entails.of_eq (oMix_end d L fx)); iexact HOut
    isplitl [H4]; · iexists _; iexact H4
    isplitl [H5]; · iexists _; iexact H5
    isplitl [R6]; · iexists _; iexact R6
    isplitl [R7]; · iexists _; iexact R7
    isplitl [Hs8]; · iexact Hs8
    isplitl [Hs9]; · iexact Hs9
    isplitl [F10]; · iexact F10
    isplitl [F11]; · iexact F11
    isplitl [HO]
    · iexists _; isplitr
      rotate_left
      · iexact HO
      ipureintro; intro p hp
      rcases Finset.mem_insert.mp hp with rfl | hp
      · exact .inr rfl
      rcases Finset.mem_insert.mp hp with rfl | hp
      · exact .inr rfl
      exact hW' p hp
    iexact HR
  · have k6_h8 : ¬ k6_cond8 L = 1#1 := fun h => hb ((cond8_iff L).mp h)
    have hm15 : ¬ (2 ≤ 2 * 8 + 1 ∧ valid L (2 * 8 + 1 - 2)) := by intro h; have := h.2; unfold valid at this; omega
    ihave S11 := (Entails.of_eq (outSlotV_neg d L fx hm15)) $$ S11
    icases S11 with ⟨⟨%g7', R7⟩, F11⟩
    sl_exec
    sl_step
    isplitl [HX]; · iapply (xRange_end d L fx); iexact HX
    isplitl [HOut F10_dst]
    · iapply (Entails.of_eq (oRange_end (oQ d L fx)).symm)
      isplitl [F10_dst]; · iapply (Entails.of_eq (oQ_pos d L fx hm14.2).symm); iexact F10_dst
      isplitr; · iapply (Entails.of_eq (oQ_neg d L fx (n := 15) (by unfold valid; omega)).symm); iempintro
      iapply (Entails.of_eq (oMix_end d L fx)); iexact HOut
    isplitl [H4]; · iexists _; iexact H4
    isplitl [H5]; · iexists _; iexact H5
    isplitl [R6]; · iexists _; iexact R6
    isplitl [R7]; · iexists _; iexact R7
    isplitl [Hs8]; · iexact Hs8
    isplitl [Hs9]; · iexact Hs9
    isplitl [F10]; · iexact F10
    isplitl [F11]; · iexact F11
    isplitl [HO]
    · iexists _; isplitr
      rotate_left
      · iexact HO
      ipureintro; intro p hp
      rcases Finset.mem_insert.mp hp with rfl | hp
      · exact .inr rfl
      exact hW' p hp
    iexact HR

/-! The subcore's scoped storage: the four staging buffers and the four semaphores of this call, and the rest. -/

abbrev c8 : GSem nD τ sig := (thr d L, SemLoc.dma cc6_scratch4.sem)
abbrev c9 : GSem nD τ sig := (thr d L, SemLoc.dma cc6_scratch5.sem)
abbrev c10 : GSem nD τ sig := (thr d L, SemLoc.dma cc6_scratch6.sem)
abbrev c11 : GSem nD τ sig := (thr d L, SemLoc.dma cc6_scratch7.sem)

omit [FloatOps F] in
theorem ownSems0_V :
    (ownSems0 (thr d L) : sProp 𝕄)
      = iprop(semVal (c8 d L) 0 ∗ semVal (c9 d L) 0 ∗ semVal (c10 d L) 0 ∗ semVal (c11 d L) 0
          ∗ bigSep (((((ownCells (thr d L)).erase (c8 d L)).erase (c9 d L)).erase (c10 d L)).erase (c11 d L)) fun g => semVal g 0) := by
  unfold SparseCore.Cfg.ownSems0
  rw [SparseCore.bigSep_erase' ((mem_ownCells (g := c8 d L)).mpr ⟨rfl, by
      show (SemLoc.dma cc6_scratch4.sem : SemLoc sig).isScoped .scVector = true; decide⟩),
    SparseCore.bigSep_erase' (Finset.mem_erase.mpr ⟨fun e => absurd (Prod.mk.inj e).2 (by decide), (mem_ownCells (g := c9 d L)).mpr ⟨rfl, by
      show (SemLoc.dma cc6_scratch5.sem : SemLoc sig).isScoped .scVector = true; decide⟩⟩),
    SparseCore.bigSep_erase' (Finset.mem_erase.mpr ⟨fun e => absurd (Prod.mk.inj e).2 (by decide), Finset.mem_erase.mpr ⟨fun e => absurd (Prod.mk.inj e).2 (by decide),
      (mem_ownCells (g := c10 d L)).mpr ⟨rfl, by show (SemLoc.dma cc6_scratch6.sem : SemLoc sig).isScoped .scVector = true; decide⟩⟩⟩),
    SparseCore.bigSep_erase' (Finset.mem_erase.mpr ⟨fun e => absurd (Prod.mk.inj e).2 (by decide), Finset.mem_erase.mpr ⟨fun e => absurd (Prod.mk.inj e).2 (by decide),
      Finset.mem_erase.mpr ⟨fun e => absurd (Prod.mk.inj e).2 (by decide),
      (mem_ownCells (g := c11 d L)).mpr ⟨rfl, by show (SemLoc.dma cc6_scratch7.sem : SemLoc sig).isScoped .scVector = true; decide⟩⟩⟩⟩)]

abbrev pV (L : grid6.Coords) : Proc τ := Proc.scVector (cV L) (jV L)

omit [FloatOps F] in
theorem ownBufs_V :
    (ownBufs (thr d L) : sProp 𝕄)
      = iprop((∃ f, (thr d L).loc cc6_scratch0 ↦{fullShare} f) ∗ (∃ f, (thr d L).loc cc6_scratch1 ↦{fullShare} f)
          ∗ (∃ f, (thr d L).loc cc6_scratch2 ↦{fullShare} f) ∗ (∃ f, (thr d L).loc cc6_scratch3 ↦{fullShare} f)
          ∗ bigSep (((((ownRefs (τ := τ) (pV L)).erase ((pV L).devRef cc6_scratch0)).erase ((pV L).devRef cc6_scratch1)).erase
              ((pV L).devRef cc6_scratch2)).erase ((pV L).devRef cc6_scratch3))
              fun b => iprop(∃ f, ((d, b) : Loc nD τ sig) ↦{fullShare} f)) := by
  unfold SparseCore.Cfg.ownBufs
  refine (SparseCore.bigSep_erase' (SparseCore.Cfg.mem_ownRefs_of_owner (p := pV L) (b := (pV L).devRef cc6_scratch0) rfl)).trans ?_
  rw [SparseCore.bigSep_erase' (Finset.mem_erase.mpr ⟨fun e => absurd (Proc.devRef_injective _ e) (show (cc6_scratch1 : Ref sig .scVector) ≠ cc6_scratch0 by decide),
      SparseCore.Cfg.mem_ownRefs_of_owner (p := pV L) (b := (pV L).devRef cc6_scratch1) rfl⟩),
    SparseCore.bigSep_erase' (Finset.mem_erase.mpr ⟨fun e => absurd (Proc.devRef_injective _ e) (show (cc6_scratch2 : Ref sig .scVector) ≠ cc6_scratch1 by decide),
      Finset.mem_erase.mpr ⟨fun e => absurd (Proc.devRef_injective _ e) (show (cc6_scratch2 : Ref sig .scVector) ≠ cc6_scratch0 by decide),
      SparseCore.Cfg.mem_ownRefs_of_owner (p := pV L) (b := (pV L).devRef cc6_scratch2) rfl⟩⟩),
    SparseCore.bigSep_erase' (Finset.mem_erase.mpr ⟨fun e => absurd (Proc.devRef_injective _ e) (show (cc6_scratch3 : Ref sig .scVector) ≠ cc6_scratch2 by decide),
      Finset.mem_erase.mpr ⟨fun e => absurd (Proc.devRef_injective _ e) (show (cc6_scratch3 : Ref sig .scVector) ≠ cc6_scratch1 by decide),
      Finset.mem_erase.mpr ⟨fun e => absurd (Proc.devRef_injective _ e) (show (cc6_scratch3 : Ref sig .scVector) ≠ cc6_scratch0 by decide),
      SparseCore.Cfg.mem_ownRefs_of_owner (p := pV L) (b := (pV L).devRef cc6_scratch3) rfl⟩⟩⟩)]

/-- The rest of the subcore's scoped storage, which the task does not touch. -/
def restR : sProp 𝕄 :=
  iprop((bigSep (((((ownRefs (τ := τ) (pV L)).erase ((pV L).devRef cc6_scratch0)).erase ((pV L).devRef cc6_scratch1)).erase
              ((pV L).devRef cc6_scratch2)).erase ((pV L).devRef cc6_scratch3))
              fun b => iprop(∃ f, ((d, b) : Loc nD τ sig) ↦{fullShare} f))
      ∗ bigSep (((((ownCells (thr d L)).erase (c8 d L)).erase (c9 d L)).erase (c10 d L)).erase (c11 d L)) fun g => semVal g 0)

theorem body_pre (hO : ∀ g, O g none = 0) :
    iprop(levAts (K (F := F)).L (K (F := F)).lev ∗ emp ∗ goRes d L fx ∗ ownBufs (thr d L) ∗ ownSems0 (thr d L) ∗ owes (thr d L) O W)
      ⊢ runPre d L O W fx (restR (F := F) d L) := by
  rw [ownSems0_V, ownBufs_V]
  unfold goRes runPre restR
  iintro ⟨#Hlv, -, ⟨HX, HOut⟩, ⟨H4, H5, H6, H7, Hbufs⟩, ⟨Hs8, Hs9, Hs10, Hs11, Hsems⟩, HO⟩
  ihave Hmw := ((K (F := F)).mayWaits_none (thr := thr d L) hO) $$ Hlv
  isplitr; · iexact Hmw
  isplitl [HO]; · iexact HO
  isplitl [HX]; · iexact HX
  isplitl [HOut]; · iexact HOut
  isplitl [H4]; · iexact H4
  isplitl [H5]; · iexact H5
  isplitl [H6]; · iexact H6
  isplitl [H7]; · iexact H7
  isplitl [Hs8]; · iexact Hs8
  isplitl [Hs9]; · iexact Hs9
  isplitl [Hs10]; · iexact Hs10
  isplitl [Hs11]; · iexact Hs11
  isplitl [Hbufs]; · iexact Hbufs
  iexact Hsems

theorem body_post :
    runPost d L O W fx (restR (F := F) d L)
      ⊢ iprop(tdRes d L fx ∗ ownBufs (thr d L) ∗ ownSems0 (thr d L) ∗ ∃ W', ⌜∀ p ∈ W', p ∈ W ∨ p.2 = none⌝ ∗ owes (thr d L) O W') := by
  rw [ownSems0_V, ownBufs_V]
  unfold tdRes runPost restR
  iintro ⟨HX, HOut, H4, H5, H6, H7, Hs8, Hs9, Hs10, Hs11, HW, Hbufs, Hsems⟩
  isplitl [HX HOut]
  · isplitl [HX]; · iexact HX
    iexact HOut
  isplitl [H4 H5 H6 H7 Hbufs]
  · isplitl [H4]; · iexact H4
    isplitl [H5]; · iexact H5
    isplitl [H6]; · iexact H6
    isplitl [H7]; · iexact H7
    iexact Hbufs
  isplitl [Hs8 Hs9 Hs10 Hs11 Hsems]
  · isplitl [Hs8]; · iexact Hs8
    isplitl [Hs9]; · iexact Hs9
    isplitl [Hs10]; · iexact Hs10
    isplitl [Hs11]; · iexact Hs11
    iexact Hsems
  iexact HW

/-- The task in the launch theorem's shape: from what the call hands the tile and the subcore's scoped storage to
    what the tile hands back and the storage again. -/
theorem tile_body (hF : (K (F := F)).Facts) (hO : ∀ g, O g none = 0) :
    iprop(levAts (K (F := F)).L (K (F := F)).lev ∗ emp ∗ goRes d L fx ∗ scopedBufs (thr d L) ∗ scopedSems0 (thr d L) ∗ owes (thr d L) O W)
      ⊢ wp frame (wpE (defs₀ (F := F)) 𝒱₀ (thr d L) none) Set.univ
          (cc6_sc_group L xtW (Memref.isWhole_whole _) oW (Memref.isWhole_whole _) a4 (Memref.isWhole_whole _) a5 (Memref.isWhole_whole _)
            a6 (Memref.isWhole_whole _) a7 (Memref.isWhole_whole _) cc6_scratch4 cc6_scratch5 cc6_scratch6 cc6_scratch7)
          fun _ => iprop(tdRes d L fx ∗ scopedBufs (thr d L) ∗ scopedSems0 (thr d L)
            ∗ ∃ W', ⌜∀ p ∈ W', p ∈ W ∨ p.2 = none⌝ ∗ owes (thr d L) O W') := by
  rw [(K (F := F)).scopedBufs_V hF d (cV L) (jV L), SparseCore.Cfg.scopedSems0_V (Val := Elt F) d (cV L) (jV L)]
  exact (body_pre d L O W fx hO).trans ((tile_run d L O W fx (restR (F := F) d L)).trans (wp_mono frame _ _ fun _ => body_post d L O W fx))

end Tile

end Cert.Proof.TileB6

end
-- ==== Proof.TileVal7.lean ====
/-
  What the staging buffers of one vector subcore hold while it copies a piece of 3200 consecutive elements of row 7 of
  the transposed argument into the flat result, read index by index. No program and no ownership here: only the contents.

  A transfer lands the piece in row 0 of an 8 × 3200 staging array (`InRow`: position (0, t) of that row holds element
  (0, pos + t) of the transposed argument, `pos` the piece's first column). A loop of 200 trips copies that row, 16 lanes
  per trip, into the first 3200 elements of a flat staging array of 25600: trip `j` reads the 1 × 16 window at columns
  [16 j, 16 j + 16) of row 0 and writes it, flattened, at elements [16 j, 16 j + 16). After `j` trips the first 16 j
  elements of the flat array are the first 16 j elements of the row (`Lanes`); a trip extends the prefix by 16
  (`lanes_step`: an element below 16 j is outside the window written and keeps its value, an element of the window reads
  the lane written there, which is the row's element at the same column). A second transfer writes the first 3200
  elements of the flat array to the piece of the result at the same `pos`; so every element of that piece of the result
  holds the element of row 7 of the transposed argument at its own position (`out_written`): the composite of the three
  index maps t ↦ (0, pos + t) ↦ (0, t) ↦ t ↦ pos + t is the identity on positions of the row.
-/
import proofs.«206869_g37898791420194_cont_8to1_b_558_20_alg».proof.Proof.TileK7Defs
import proofs.«206869_g37898791420194_cont_8to1_b_558_20_alg».proof.Proof.Spec
import Idealize.ShloMosaic.Lib.WritesUnit
import Idealize.ShloMosaic.Lib.ValueLayout

noncomputable section

namespace Cert.Proof.TileVal7

open Cert.Proof.TileK7 Cert.KernelIdeal Cert.KernelIdeal.Gen
open Idealize.ShloMosaic Idealize.ShloMosaic.ValueIdx

variable {F : FTy → Type} [FloatOps F]
variable (d : Dev nD) (L : grid7.Coords)
variable (fx : Buf (Elt F) ((Memref.whole main_v0_scv : Memref sig .scVector .hbm S22x1600000 .f32).view.loc (thr d L)))

abbrev rowRect : Rect S8x3200 := Rect.unit (s := S8x3200) ![0, 0] S1x3200.size inb_S8x3200_S1x3200_0_0

/-- row 0 of the staging array is piece n of the argument row -/
def InRow (a : Memref sig .scVector .vmem S8x3200 .f32) (ga : Buf (Elt F) (a.view.loc (thr d L))) (n : ℕ) : Prop :=
  ∀ y : S1x3200.Idx, a.view.read (Elt F) ga (rowRect.emb y) = (inM L n).view.read (Elt F) fx y

theorem inRow_fetch (a : Memref sig .scVector .vmem S8x3200 .f32) (gold : Buf (Elt F) (a.view.loc (thr d L)))
    (w : S1x3200.Idx → Elt F .f32) (n : ℕ) (hw : ∀ y, w y = (inM L n).view.read (Elt F) fx y) :
    InRow d L fx a (a.view.writes (Elt F) gold [⟨rowRect, w⟩]) n :=
  fun y => (View.read_writes_cons_emb a.view gold rowRect w [] y).trans (hw y)

def Lanes (a : Memref sig .scVector .vmem S8x3200 .f32) (b : Memref sig .scVector .vmem S25600 .f32)
    (ga : Buf (Elt F) (a.view.loc (thr d L))) (gb : Buf (Elt F) (b.view.loc (thr d L))) (j : ℕ) : Prop :=
  ∀ (r : ℕ) (hr : r < 3200), r < 16 * j →
    b.view.read (Elt F) gb (ix1 (⟨r, by omega⟩ : Fin 25600)) = a.view.read (Elt F) ga (ix2 (0 : Fin 8) (⟨r, hr⟩ : Fin 3200))

theorem lanes_zero (a : Memref sig .scVector .vmem S8x3200 .f32) (b : Memref sig .scVector .vmem S25600 .f32)
    (ga : Buf (Elt F) (a.view.loc (thr d L))) (gb : Buf (Elt F) (b.view.loc (thr d L))) : Lanes d L a b ga gb 0 := by
  intro r hr h; omega

/-- The 1 × 16 window at column `c` of the staging array, read at lane `t`, is element `(0, c + t)`. -/
theorem idx_window {off : Fin 2 → ℕ} {c : ℕ} (h : off = ![0, c]) (p : ∀ a', off a' + S1x16.size a' ≤ S8x3200.size a')
    (t : Fin 16) (hr : c + t.val < 3200) :
    (Rect.unit (s := S8x3200) off S1x16.size p).toLoadRect.idx (ix2 (0 : Fin 1) t) = ix2 (0 : Fin 8) (⟨c + t.val, hr⟩ : Fin 3200) := by
  subst h
  funext a'; apply Fin.ext
  rw [LoadRect.idx_apply]
  match a' with
  | ⟨0, _⟩ => show 0 + 1 * 0 = 0; omega
  | ⟨1, _⟩ => show c + 1 * t.val = c + t.val; omega

/-- One trip of a lane-copy loop, the offsets given by their closed forms. -/
theorem lanes_step_core (a : Memref sig .scVector .vmem S8x3200 .f32) (b : Memref sig .scVector .vmem S25600 .f32)
    (ga : Buf (Elt F) (a.view.loc (thr d L))) (gb : Buf (Elt F) (b.view.loc (thr d L)))
    (t : ℕ) {off3 : Fin 2 → ℕ} {off4 : Fin 1 → ℕ} (h3 : off3 = ![0, 16 * t]) (h4 : off4 = ![16 * t])
    (p3 : ∀ a', off3 a' + S1x16.size a' ≤ S8x3200.size a') (p4 : ∀ a', off4 a' + S16.size a' ≤ S25600.size a')
    (h : Lanes d L a b ga gb t) :
    Lanes d L a b ga (b.view.writes (Elt F) gb [⟨Rect.unit (s := S25600) off4 S16.size p4,
      shapeCast S16 (a.view.readAt (Elt F) (Rect.unit (s := S8x3200) off3 S1x16.size p3).toLoadRect ga) shapeCasts_S1x16_S16⟩]) (t + 1) := by
  intro r hr hlt
  by_cases hlo : r < 16 * t
  · refine (View.read_writes_cons_unit_of_not_mem b.view gb p4 _ [] _ h4 (0 : Fin 1) (Or.inl ?_)).trans (h r hr hlo)
    show r < 16 * t
    exact hlo
  · have hx : r - 16 * t < 16 := by omega
    refine (View.read_writes_cons_unit_of_mem b.view gb p4 _ [] _ (ix1 (⟨r - 16 * t, hx⟩ : Fin 16)) h4 ?_).trans ?_
    · intro a'
      match a' with
      | ⟨0, _⟩ => show r = 16 * t + (r - 16 * t); omega
    · rw [shapeCast_1a_a_apply, View.readAt_apply, idx_window h3 p3 ⟨r - 16 * t, hx⟩ (by show 16 * t + (r - 16 * t) < 3200; omega)]
      congr 2
      apply Fin.ext
      show 16 * t + (r - 16 * t) = r
      omega

theorem lanes_step (a : Memref sig .scVector .vmem S8x3200 .f32) (b : Memref sig .scVector .vmem S25600 .f32)
    (ga : Buf (Elt F) (a.view.loc (thr d L))) (gb : Buf (Elt F) (b.view.loc (thr d L)))
    (j : Fin k7_t2_loop.trips) (p3 : ∀ a', (k7_off3 j) a' + S1x16.size a' ≤ S8x3200.size a')
    (p4 : ∀ a', (k7_off4 j) a' + S16.size a' ≤ S25600.size a') (h : Lanes d L a b ga gb j.val) :
    Lanes d L a b ga (b.view.writes (Elt F) gb [⟨Rect.unit (s := S25600) (k7_off4 j) S16.size p4,
      k7_pay1 (a.view.readAt (Elt F) (Rect.unit (s := S8x3200) (k7_off3 j) S1x16.size p3).toLoadRect ga)⟩]) (j.val + 1) :=
  lanes_step_core d L a b ga gb j.val (k7_off3_eq j) (k7_off4_eq j) p3 p4 h

theorem lanes_step' (a : Memref sig .scVector .vmem S8x3200 .f32) (b : Memref sig .scVector .vmem S25600 .f32)
    (ga : Buf (Elt F) (a.view.loc (thr d L))) (gb : Buf (Elt F) (b.view.loc (thr d L)))
    (j : Fin k7_t3_loop.trips) (p3 : ∀ a', (k7_off8 j) a' + S1x16.size a' ≤ S8x3200.size a')
    (p4 : ∀ a', (k7_off9 j) a' + S16.size a' ≤ S25600.size a') (h : Lanes d L a b ga gb j.val) :
    Lanes d L a b ga (b.view.writes (Elt F) gb [⟨Rect.unit (s := S25600) (k7_off9 j) S16.size p4,
      k7_pay2 (a.view.readAt (Elt F) (Rect.unit (s := S8x3200) (k7_off8 j) S1x16.size p3).toLoadRect ga)⟩]) (j.val + 1) :=
  lanes_step_core d L a b ga gb j.val (k7_off8_eq j) (k7_off9_eq j) p3 p4 h

/-- Position `y` of the write-out window of the flat staging array is its element `y 0`. -/
theorem stg_emb (y : S3200.Idx) (hy : (y 0).val < 25600) :
    (Rect.unit (s := S25600) ![0] S3200.size inb_S25600_S3200_0).emb y = ix1 (⟨(y 0).val, hy⟩ : Fin 25600) := by
  funext a'; apply Fin.ext
  match a' with
  | ⟨0, _⟩ => show 0 + 1 * (y 0).val = (y 0).val; omega

/-- Position `(0, t)` of row 0 of the staging array is its element `(0, t)`. -/
theorem row_emb (t : Fin 3200) : rowRect.emb (ix2 (0 : Fin 1) t) = ix2 (0 : Fin 8) t := by
  funext a'; apply Fin.ext
  match a' with
  | ⟨0, _⟩ => show 0 + 1 * 0 = 0; omega
  | ⟨1, _⟩ => show 0 + 1 * t.val = t.val; omega

/-- Position `(0, t)` of piece `n` of the argument row is element `(0, pos + t)` of the transposed argument;
    position `y` of piece `n` of the result is element `pos + y 0` of the result. -/
theorem in_emb (n : ℕ) (t : Fin 3200) (h : pos L n + t.val < 1600000) :
    (inM L n).view.emb (ix2 (0 : Fin 1) t) = ix2 (7 : Fin 22) (⟨pos L n + t.val, h⟩ : Fin 1600000) := by
  funext a'; apply Fin.ext
  match a' with
  | ⟨0, _⟩ => show 7 + 1 * 0 = 7; omega
  | ⟨1, _⟩ => show pos L n + 1 * t.val = pos L n + t.val; omega

theorem out_emb (n : ℕ) (y : S3200.Idx) (h : pos L n + (y 0).val < 1600000) :
    (outM L n).view.emb y = ix1 (⟨pos L n + (y 0).val, h⟩ : Fin 1600000) := by
  funext a'; apply Fin.ext
  match a' with
  | ⟨0, _⟩ => show pos L n + 1 * (y 0).val = pos L n + (y 0).val; omega

/-- Both lane-copy loops run 200 trips: 200 · 16 = 3200, the whole row. -/
theorem trips2 : k7_t2_loop.trips = 200 := by decide
theorem trips3 : k7_t3_loop.trips = 200 := by decide

/-- After all its trips a lane-copy loop has copied the whole row. -/
theorem lanes_all (a : Memref sig .scVector .vmem S8x3200 .f32) (b : Memref sig .scVector .vmem S25600 .f32)
    (ga : Buf (Elt F) (a.view.loc (thr d L))) (gb : Buf (Elt F) (b.view.loc (thr d L)))
    (h : Lanes d L a b ga gb k7_t2_loop.trips) : Lanes d L a b ga gb 200 := trips2 ▸ h
theorem lanes_all' (a : Memref sig .scVector .vmem S8x3200 .f32) (b : Memref sig .scVector .vmem S25600 .f32)
    (ga : Buf (Elt F) (a.view.loc (thr d L))) (gb : Buf (Elt F) (b.view.loc (thr d L)))
    (h : Lanes d L a b ga gb k7_t3_loop.trips) : Lanes d L a b ga gb 200 := trips3 ▸ h

/-- The write-out of a piece: the first 3200 elements of the flat staging array, which the 200 lane copies filled from
    row 0 of the staging array, which the fetch filled from piece `n` of row 7 of the transposed argument, land at
    piece `n` of the result, at the same positions of the row. -/
theorem out_written (a : Memref sig .scVector .vmem S8x3200 .f32) (b : Memref sig .scVector .vmem S25600 .f32) (n : ℕ)
    (ga : Buf (Elt F) (a.view.loc (thr d L))) (gb : Buf (Elt F) (b.view.loc (thr d L)))
    (f0 : Buf (Elt F) ((outM L n).view.loc (thr d L))) (w : S3200.Idx → Elt F .f32)
    (hw : ∀ y, w y = (stg b).view.read (Elt F) gb y) (hl : Lanes d L a b ga gb 200) (hr : InRow d L fx a ga n) (hv : valid L n) :
    ∀ i ∈ (outM L n).view.set, ((outM L n).view.writes (Elt F) f0 [⟨Rect.whole _, w⟩]) i = Cert.Spec.row 7 fx i := by
  intro i hi
  obtain ⟨y, -, rfl⟩ := Finset.mem_map.mp hi
  have hy : (y 0).val < 3200 := (y 0).isLt
  have hp : pos L n + (y 0).val < 1600000 := by unfold pos; omega
  have e1 : (outM L n).view.writes (Elt F) f0 [⟨Rect.whole _, w⟩] ((outM L n).view.emb y) = w y := by
    have h := View.read_writes_cons_emb (outM L n).view f0 (Rect.whole _) w [] y
    rw [Rect.emb_whole_apply] at h
    exact (cast_eq _ _).symm.trans ((View.read_apply _ _).symm.trans h)
  have e2 : (stg b).view.read (Elt F) gb y = b.view.read (Elt F) gb (ix1 (⟨(y 0).val, by omega⟩ : Fin 25600)) :=
    congrArg (b.view.read (Elt F) gb) (stg_emb y (by omega))
  have e3 : a.view.read (Elt F) ga (ix2 (0 : Fin 8) (⟨(y 0).val, hy⟩ : Fin 3200))
      = (inM L n).view.read (Elt F) fx (ix2 (0 : Fin 1) (⟨(y 0).val, hy⟩ : Fin 3200)) :=
    (congrArg (a.view.read (Elt F) ga) (row_emb ⟨(y 0).val, hy⟩).symm).trans (hr _)
  have e4 : (inM L n).view.read (Elt F) fx (ix2 (0 : Fin 1) (⟨(y 0).val, hy⟩ : Fin 3200))
      = fx (ix2 (7 : Fin 22) (⟨pos L n + (y 0).val, hp⟩ : Fin 1600000)) :=
    ((View.read_apply _ _).trans (cast_eq _ _)).trans (congrArg fx (in_emb L n ⟨(y 0).val, hy⟩ hp))
  have e5 : Cert.Spec.row 7 fx ((outM L n).view.emb y) = fx (ix2 (7 : Fin 22) (⟨pos L n + (y 0).val, hp⟩ : Fin 1600000)) :=
    (congrArg (Cert.Spec.row 7 fx) (out_emb L n y hp)).trans (Cert.Spec.row_apply 7 fx _)
  exact e1.trans ((hw y).trans (e2.trans ((hl _ hy (by omega)).trans (e3.trans (e4.trans e5.symm)))))

end Cert.Proof.TileVal7

end
-- ==== Proof.TileK7.lean ====
/-
  One vector subcore's task of copy kernel 7 (counting from 0), run symbolically: the two fetch slots and two write-out slots
  between trips of the main loop (what each transfer in flight will hand back, and what the staging buffers hold), the
  invariant of the main loop and of the two lane-copy loops, and the task's run — from the tile's pieces of row 7 of
  the transposed argument and of the result to the same pieces with the result holding the row's elements.
-/
import proofs.«206869_g37898791420194_cont_8to1_b_558_20_alg».proof.Proof.TileK7Defs
import proofs.«206869_g37898791420194_cont_8to1_b_558_20_alg».proof.Proof.TileVal7
noncomputable section

namespace Cert.Proof.TileK7

open Cert.KernelIdeal Cert.KernelIdeal.Gen Cert.Proof.TileVal7
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 22) (Elt F) ℕ UU ℕ
local notation "xtW" => (Memref.whole Cert.KernelIdeal.main_v0_scv : Memref Cert.KernelIdeal.sig Kind.scVector Space.hbm Cert.KernelIdeal.S22x1600000 EltTy.f32)
local notation "oW" => (Memref.whole Cert.KernelIdeal.main_v8_scv : Memref Cert.KernelIdeal.sig Kind.scVector Space.hbm Cert.KernelIdeal.S1600000 EltTy.f32)
local notation "a4" => (Memref.whole Cert.KernelIdeal.cc7_scratch0 : Memref Cert.KernelIdeal.sig Kind.scVector Space.vmem Cert.KernelIdeal.S8x3200 EltTy.f32)
local notation "a5" => (Memref.whole Cert.KernelIdeal.cc7_scratch1 : Memref Cert.KernelIdeal.sig Kind.scVector Space.vmem Cert.KernelIdeal.S8x3200 EltTy.f32)
local notation "a6" => (Memref.whole Cert.KernelIdeal.cc7_scratch2 : Memref Cert.KernelIdeal.sig Kind.scVector Space.vmem Cert.KernelIdeal.S25600 EltTy.f32)
local notation "a7" => (Memref.whole Cert.KernelIdeal.cc7_scratch3 : Memref Cert.KernelIdeal.sig Kind.scVector Space.vmem Cert.KernelIdeal.S25600 EltTy.f32)

variable [FloatOps F]

section Tile

variable (d : Dev nD) (L : grid7.Coords)
variable (O : CellTallies nD τ sig (HIx 22)) (W : Waits sig (HIx 22))
variable (fx : Buf (Elt F) ((xtW).view.loc (thr d L)))

/-- Piece `n` of the result at its final contents. -/
abbrev oqPiece (n : ℕ) : sProp 𝕄 := (outM L n).view.loc (thr d L) ↦[(outM L n).view.set]{fullShare} (Cert.Spec.row 7 fx)
theorem oQ_pos {n : ℕ} (v : valid L n) : oQ d L fx n = oqPiece d L fx n := if_pos v
theorem oQ_neg {n : ℕ} (v : ¬ valid L n) : oQ d L fx n = iprop(emp) := if_neg v

/-- A fetch slot, remembering that the staging row it will hand back holds the piece. -/
def inSlotV (a : Memref sig .scVector .vmem S8x3200 .f32) (sm : DmaSem sig) (n : ℕ) : sProp 𝕄 :=
  if valid L n then
    iprop(∃ g, ⌜InRow d L fx a g n⌝ ∗ Transfers.Flight countersEmb (thr d L) (SemLoc.dma sm) (default : HIx 22) NN
      iprop((a.view.loc (thr d L) ↦{fullShare} g) ∗ xtPiece d L fx n))
  else iprop((∃ g, a.view.loc (thr d L) ↦{fullShare} g) ∗ semVal (thr d L, SemLoc.dma sm) 0)

/-- A write-out slot: the piece in flight will come back holding the row's elements. -/
def outSlotV (a : Memref sig .scVector .vmem S25600 .f32) (sm : DmaSem sig) (m : ℕ) : sProp 𝕄 :=
  if 2 ≤ m ∧ valid L (m - 2) then
    iprop(∃ g, Transfers.Flight countersEmb (thr d L) (SemLoc.dma sm) (default : HIx 22) NN
        iprop(oqPiece d L fx (m - 2) ∗ ((stg a).view.loc (thr d L) ↦[(stg a).view.set]{fullShare} g))
      ∗ (a.view.loc (thr d L) ↦[Finset.univ \ (stg a).view.set]{fullShare} g))
  else iprop((∃ g, a.view.loc (thr d L) ↦{fullShare} g) ∗ semVal (thr d L, SemLoc.dma sm) 0)

theorem inSlotV_pos {a : Memref sig .scVector .vmem S8x3200 .f32} {sm : DmaSem sig} {n : ℕ} (v : valid L n) :
    inSlotV d L fx a sm n = iprop(∃ g, ⌜InRow d L fx a g n⌝ ∗ Transfers.Flight countersEmb (thr d L) (SemLoc.dma sm) (default : HIx 22) NN
      iprop((a.view.loc (thr d L) ↦{fullShare} g) ∗ xtPiece d L fx n)) := by unfold inSlotV; rw [if_pos v]
theorem inSlotV_neg {a : Memref sig .scVector .vmem S8x3200 .f32} {sm : DmaSem sig} {n : ℕ} (v : ¬ valid L n) :
    inSlotV d L fx a sm n = iprop((∃ g, a.view.loc (thr d L) ↦{fullShare} g) ∗ semVal (thr d L, SemLoc.dma sm) 0) := by
  unfold inSlotV; rw [if_neg v]
theorem outSlotV_pos {a : Memref sig .scVector .vmem S25600 .f32} {sm : DmaSem sig} {m : ℕ} (h : 2 ≤ m ∧ valid L (m - 2)) :
    outSlotV d L fx a sm m = iprop(∃ g, Transfers.Flight countersEmb (thr d L) (SemLoc.dma sm) (default : HIx 22) NN
        iprop(oqPiece d L fx (m - 2) ∗ ((stg a).view.loc (thr d L) ↦[(stg a).view.set]{fullShare} g))
      ∗ (a.view.loc (thr d L) ↦[Finset.univ \ (stg a).view.set]{fullShare} g)) := by unfold outSlotV; rw [if_pos h]
theorem outSlotV_neg {a : Memref sig .scVector .vmem S25600 .f32} {sm : DmaSem sig} {m : ℕ} (h : ¬ (2 ≤ m ∧ valid L (m - 2))) :
    outSlotV d L fx a sm m = iprop((∃ g, a.view.loc (thr d L) ↦{fullShare} g) ∗ semVal (thr d L, SemLoc.dma sm) 0) := by
  unfold outSlotV; rw [if_neg h]

/-- A fetch just issued: the staging row will hold what the transfer reads, which is the piece. -/
theorem fl_inV {off : Fin 2 → ℕ} {n : ℕ} (h : off = ![7, pos L n]) (p : ∀ a, off a + S1x3200.size a ≤ S22x1600000.size a) (v : valid L n)
    (a : Memref sig .scVector .vmem S8x3200 .f32) (sm : DmaSem sig) :
    (iprop(∃ (gold : Buf (Elt F) (a.view.loc (thr d L))) (w : S1x3200.Idx → Elt F .f32),
        ⌜∀ y, w y = ((xtW).slice (Rect.unit (s := S22x1600000) off S1x3200.size p) (fun _ => rfl)).view.read (Elt F) fx y⌝
        ∗ Transfers.Flight countersEmb (thr d L) (SemLoc.dma sm) (default : HIx 22) NN
          iprop((a.view.loc (thr d L) ↦{fullShare} a.view.writes (Elt F) gold [⟨rowRect, w⟩])
            ∗ (((xtW).slice (Rect.unit (s := S22x1600000) off S1x3200.size p) (fun _ => rfl)).view.loc (thr d L)
                ↦[((xtW).slice (Rect.unit (s := S22x1600000) off S1x3200.size p) (fun _ => rfl)).view.set]{fullShare} fx))) : sProp 𝕄)
      ⊢ inSlotV d L fx a sm n := by
  subst h
  rw [inSlotV_pos d L fx v]
  iintro ⟨%gold, %w, %hw, H⟩
  iexists _
  isplitr
  · ipureintro; exact inRow_fetch d L fx a gold w n hw
  · iexact H

set_option maxHeartbeats 4000000 in
/-- A write-out just issued from a flat staging buffer whose first 3200 elements are the staging row, itself piece
    `n` of the argument row: the piece of the result will hold the row's elements. -/
theorem fl_outV {off : Fin 1 → ℕ} {n : ℕ} (h : off = ![pos L n]) (p : ∀ a, off a + S3200.size a ≤ S1600000.size a) (v : valid L n)
    (ar : Memref sig .scVector .vmem S8x3200 .f32) (a : Memref sig .scVector .vmem S25600 .f32) (sm : DmaSem sig)
    (f0 : Buf (Elt F) ((oW).view.loc (thr d L))) (ga : Buf (Elt F) (ar.view.loc (thr d L))) (gb : Buf (Elt F) (a.view.loc (thr d L)))
    (hl : Lanes d L ar a ga gb 200) (hr : InRow d L fx ar ga n) :
    (iprop(∃ (w : S3200.Idx → Elt F .f32),
        ⌜∀ y, w y = (stg a).view.read (Elt F) gb y⌝
        ∗ Transfers.Flight countersEmb (thr d L) (SemLoc.dma sm) (default : HIx 22) NN
          iprop((((oW).slice (Rect.unit (s := S1600000) off S3200.size p) (fun _ => rfl)).view.loc (thr d L)
                ↦[((oW).slice (Rect.unit (s := S1600000) off S3200.size p) (fun _ => rfl)).view.set]{fullShare}
                  (((oW).slice (Rect.unit (s := S1600000) off S3200.size p) (fun _ => rfl)).view.writes (Elt F) f0 [⟨Rect.whole _, w⟩]))
            ∗ ((stg a).view.loc (thr d L) ↦[(stg a).view.set]{fullShare} gb))
        ∗ (a.view.loc (thr d L) ↦[Finset.univ \ (stg a).view.set]{fullShare} gb)) : sProp 𝕄)
      ⊢ outSlotV d L fx a sm (n + 2) := by
  subst h
  rw [outSlotV_pos d L fx (m := n + 2) ⟨by omega, by simpa using v⟩]
  iintro ⟨%w, %hw, H, R⟩
  have hD : (iprop(((outM L n).view.loc (thr d L) ↦[(outM L n).view.set]{fullShare} ((outM L n).view.writes (Elt F) f0 [⟨Rect.whole _, w⟩]))
          ∗ ((stg a).view.loc (thr d L) ↦[(stg a).view.set]{fullShare} gb)) : sProp 𝕄)
      ⊢ iprop(oqPiece d L fx (n + 2 - 2) ∗ ((stg a).view.loc (thr d L) ↦[(stg a).view.set]{fullShare} gb)) := by
    rw [Nat.add_sub_cancel]
    have e : (((outM L n).view.loc (thr d L) ↦[(outM L n).view.set]{fullShare} ((outM L n).view.writes (Elt F) f0 [⟨Rect.whole _, w⟩])) : sProp 𝕄)
        = oqPiece d L fx n := pointsTo_congr (out_written d L fx ar a n ga gb f0 w hw hl hr v)
    iintro ⟨H1, H2⟩
    isplitl [H1]
    · iapply (Entails.of_eq e); iexact H1
    · iexact H2
  iexists gb
  isplitl [H]
  · iapply (Transfers.Flight_mono countersEmb (thr d L) hD); iexact H
  · iexact R

/-- The result pieces outside the slots before trip `t`: those already written hold the row, the others some contents. -/
def oMix (t n : ℕ) : sProp 𝕄 := if n + 2 < 2 * t then oQ d L fx n else oP (F := F) d L n
theorem oMix_lt {t n : ℕ} (h : n + 2 < 2 * t) : oMix d L fx t n = oQ d L fx n := if_pos h
theorem oMix_ge {t n : ℕ} (h : ¬ n + 2 < 2 * t) : oMix d L fx t n = oP (F := F) d L n := if_neg h
theorem oMix_core (k : ℕ) : bigSep (oCore k) (oMix d L fx k) = bigSep (oCore k) (oMix d L fx (k + 1)) :=
  bigSep_congr fun n hn => by
    have hn' : n + 2 ≠ 2 * k ∧ n + 2 ≠ 2 * k + 1 ∧ n ≠ 2 * k ∧ n ≠ 2 * k + 1 := by
      simp only [oCore, Finset.mem_filter, Finset.mem_range] at hn; exact hn.2
    by_cases h : n + 2 < 2 * k
    · rw [oMix_lt d L fx h, oMix_lt d L fx (by omega)]
    · rw [oMix_ge d L fx h, oMix_ge d L fx (by omega)]
theorem oMix_zero : bigSep (oSet 0) (oMix d L fx 0) = bigSep (Finset.range 18) (oP (F := F) d L) := by
  rw [oSet_zero]; exact bigSep_congr fun n _ => oMix_ge d L fx (by omega)
theorem oMix_end : bigSep (oSet 8) (oMix d L fx 8) = bigSep (oSet 8) (oQ d L fx) :=
  bigSep_congr fun n hn => by
    have hn' : n < 18 ∧ n + 2 ≠ 16 ∧ n + 2 ≠ 17 := by simpa only [oSet, Finset.mem_filter, Finset.mem_range] using hn
    by_cases h : n + 2 < 2 * 8
    · exact oMix_lt d L fx h
    · rw [oMix_ge d L fx h, oP_neg (F := F) d L (by unfold valid; omega), oQ_neg d L fx (by unfold valid; omega)]

/-- The lane-copy loops: before trip `j` the first 16·j elements of the flat staging buffer are the staging row's. -/
def laneV0 (g4 : Buf (Elt F) ((a4).view.loc (thr d L))) (j : ℕ) (_ : PUnit) : sProp 𝕄 :=
  iprop(((a4).view.loc (thr d L) ↦{fullShare} g4) ∗ (∃ g, ((a6).view.loc (thr d L) ↦{fullShare} g) ∗ ⌜Lanes d L a4 a6 g4 g j⌝))
def laneV1 (g5 : Buf (Elt F) ((a5).view.loc (thr d L))) (j : ℕ) (_ : PUnit) : sProp 𝕄 :=
  iprop(((a5).view.loc (thr d L) ↦{fullShare} g5) ∗ (∃ g, ((a7).view.loc (thr d L) ↦{fullShare} g) ∗ ⌜Lanes d L a5 a7 g5 g j⌝))

def invV (t : ℕ) (_ : PUnit) : sProp 𝕄 :=
  iprop(Transfers.MayWaits (thr d L) (none : HIx 22) O
    ∗ (∃ W', ⌜∀ p ∈ W', p ∈ W ∨ p.2 = none⌝ ∗ owes (thr d L) O W')
    ∗ bigSep (xSet t) (xP d L fx) ∗ bigSep (oSet t) (oMix d L fx t)
    ∗ inSlotV d L fx a4 cc7_scratch4.sem (2 * t) ∗ outSlotV d L fx a6 cc7_scratch6.sem (2 * t)
    ∗ inSlotV d L fx a5 cc7_scratch5.sem (2 * t + 1) ∗ outSlotV d L fx a7 cc7_scratch7.sem (2 * t + 1))

/-- After the last trip nothing of the argument row is in a slot: the tile holds all its pieces. -/
theorem xRange_end : bigSep (xSet 8) (xP d L fx) ⊢ bigSep (Finset.range 18) (xP d L fx) := by
  rw [two_out (s := Finset.range 18) (a := 16) (b := 17) (by decide) (by decide) (by decide),
    show ((Finset.range 18).erase 16).erase 17 = xSet 8 by decide]
  iintro H
  isplitr; · iapply (Entails.of_eq (xP_neg d L fx (n := 16) (by unfold valid; omega)).symm); iempintro
  isplitr; · iapply (Entails.of_eq (xP_neg d L fx (n := 17) (by unfold valid; omega)).symm); iempintro
  iexact H
omit [FloatOps F] in
theorem oRange_end (Φ : ℕ → sProp 𝕄) : bigSep (Finset.range 18) Φ = iprop(Φ 14 ∗ Φ 15 ∗ bigSep (oSet 8) Φ) := by
  rw [two_out (s := Finset.range 18) (a := 14) (b := 15) (by decide) (by decide) (by decide),
    show ((Finset.range 18).erase 14).erase 15 = oSet 8 by decide]

/-- What the run starts from and ends with, beside an untouched rest `R`. -/
def runPre (R : sProp 𝕄) : sProp 𝕄 :=
    iprop(Transfers.MayWaits (thr d L) (none : HIx 22) O ∗ owes (thr d L) O W
        ∗ bigSep (Finset.range 18) (xP d L fx) ∗ bigSep (Finset.range 18) (oP (F := F) d L)
        ∗ (∃ g, (a4).view.loc (thr d L) ↦{fullShare} g) ∗ (∃ g, (a5).view.loc (thr d L) ↦{fullShare} g)
        ∗ (∃ g, (a6).view.loc (thr d L) ↦{fullShare} g) ∗ (∃ g, (a7).view.loc (thr d L) ↦{fullShare} g)
        ∗ semVal (thr d L, SemLoc.dma cc7_scratch4.sem) 0 ∗ semVal (thr d L, SemLoc.dma cc7_scratch5.sem) 0
        ∗ semVal (thr d L, SemLoc.dma cc7_scratch6.sem) 0 ∗ semVal (thr d L, SemLoc.dma cc7_scratch7.sem) 0 ∗ R)
def runPost (R : sProp 𝕄) : sProp 𝕄 :=
    iprop(bigSep (Finset.range 18) (xP d L fx) ∗ bigSep (Finset.range 18) (oQ d L fx)
            ∗ (∃ g, (a4).view.loc (thr d L) ↦{fullShare} g) ∗ (∃ g, (a5).view.loc (thr d L) ↦{fullShare} g)
            ∗ (∃ g, (a6).view.loc (thr d L) ↦{fullShare} g) ∗ (∃ g, (a7).view.loc (thr d L) ↦{fullShare} g)
            ∗ semVal (thr d L, SemLoc.dma cc7_scratch4.sem) 0 ∗ semVal (thr d L, SemLoc.dma cc7_scratch5.sem) 0
            ∗ semVal (thr d L, SemLoc.dma cc7_scratch6.sem) 0 ∗ semVal (thr d L, SemLoc.dma cc7_scratch7.sem) 0
            ∗ (∃ W', ⌜∀ p ∈ W', p ∈ W ∨ p.2 = none⌝ ∗ owes (thr d L) O W') ∗ R)

set_option maxHeartbeats 16000000 in
/-- The task's run: from its pieces of the argument row and of the result, the four staging buffers and the four
    semaphores at zero, to the same with every piece of the result holding the row's elements. -/
theorem tile_run (R : sProp 𝕄) :
    runPre d L O W fx R
      ⊢ wp frame (wpE (defs₀ (F := F)) 𝒱₀ (thr d L) none) Set.univ
          (cc7_sc_group L xtW (Memref.isWhole_whole _) oW (Memref.isWhole_whole _) a4 (Memref.isWhole_whole _) a5 (Memref.isWhole_whole _)
            a6 (Memref.isWhole_whole _) a7 (Memref.isWhole_whole _) cc7_scratch4 cc7_scratch5 cc7_scratch6 cc7_scratch7)
          fun _ => runPost d L O W fx R := by
  unfold runPre runPost
  have v0 : valid L 0 := Or.inl (by omega)
  have v1 : valid L 1 := Or.inl (by omega)
  have k7_h7 : k7_cond7 L = 1#1 := cond7_iff L
  iintro ⟨#Hmw, HO, HX, HOut, ⟨%g4, H4⟩, ⟨%g5, H5⟩, ⟨%g6, H6⟩, ⟨%g7, H7⟩, Hs8, Hs9, Hs10, Hs11, HR⟩
  ihave HX := (Entails.of_eq (xRange_split d L fx v0 v1)) $$ HX
  icases HX with ⟨X0, X1, HX⟩
  ihave X0 := (Entails.of_eq (in_congr d L (off_in0 L v0).symm (in_inb L _) (k7_off1_inb L 0) fx)) $$ X0
  ihave X1 := (Entails.of_eq (in_congr d L (off_in1 L v1).symm (in_inb L _) (k7_off1_inb L 1) fx)) $$ X1
  sl_unfold [cc7_sc_group]
  sl_exec
  ihave S8 := (fl_inV d L fx (off_in0 L v0) (k7_off1_inb L 0) v0 a4 cc7_scratch4.sem) $$ [Hs8]
  · iexists _, _
    isplitr
    rotate_left
    · iexact Hs8
    ipureintro; intro y; rfl
  ihave S9 := (fl_inV d L fx (off_in1 L v1) (k7_off1_inb L 1) v1 a5 cc7_scratch5.sem) $$ [Hs9]
  · iexists _, _
    isplitr
    rotate_left
    · iexact Hs9
    ipureintro; intro y; rfl
  sl_for (invV d L O W fx) $$ [HO HX HOut S8 S9 H6 H7 Hs10 Hs11]
  case region =>
    intro (k : Fin k7_t1_loop.trips) acc
    have hk : k.val < 8 := Nat.lt_of_lt_of_eq k.isLt trips1
    unfold invV
    iintro ⟨#Hmw, ⟨%W', %hW', HO⟩, HX, HOut, S8, S10, S9, S11⟩
    by_cases hk1 : 1 ≤ k.val
    · by_cases v3 : valid L (2 * k.val + 3)
      · -- the generic trip: both drains, both pieces worked, both next fetches issued
        have hk6 : k.val ≤ 6 := by unfold valid at v3; omega
        have k7_h1 : k7_cond1 k = 1#1 := (cond1_iff k).mpr (by omega)
        have k7_h2 : k7_cond2 L k = 1#1 := cond2_iff L k
        have k7_h3 : k7_cond3 L k = 1#1 := (cond3_iff L k).mpr (by omega)
        have k7_h4 : k7_cond4 k = 1#1 := (cond4_iff k).mpr (by omega)
        have k7_h5 : k7_cond5 L k = 1#1 := (cond5_iff L k).mpr (by first | (unfold valid big at *; omega) | (unfold big at *; omega) | omega)
        have k7_h6 : k7_cond6 L k = 1#1 := (cond6_iff L k).mpr (by first | (unfold valid big at *; omega) | (unfold big at *; omega) | omega)
        have v0 : valid L (2 * k.val) := by unfold valid big at *; omega
        have v1 : valid L (2 * k.val + 1) := by unfold valid big at *; omega
        have v2 : valid L (2 * k.val + 2) := by unfold valid big at *; omega
        have v3' : valid L (2 * k.val + 3) := by unfold valid big at *; omega
        have hm0 : 2 ≤ 2 * k.val ∧ valid L (2 * k.val - 2) := ⟨by omega, by unfold valid big at *; omega⟩
        have hm1 : 2 ≤ 2 * k.val + 1 ∧ valid L (2 * k.val + 1 - 2) := ⟨by omega, by unfold valid big at *; omega⟩
        ihave S8 := (Entails.of_eq (inSlotV_pos d L fx v0)) $$ S8
        icases S8 with ⟨%g4, %hin4, F8⟩
        ihave S9 := (Entails.of_eq (inSlotV_pos d L fx v1)) $$ S9
        icases S9 with ⟨%g5, %hin5, F9⟩
        ihave S10 := (Entails.of_eq (outSlotV_pos d L fx hm0)) $$ S10
        icases S10 with ⟨%g6, F10, R6⟩
        ihave S11 := (Entails.of_eq (outSlotV_pos d L fx hm1)) $$ S11
        icases S11 with ⟨%g7, F11, R7⟩
        ihave HX := (Entails.of_eq (xSet_out (xP d L fx) k.val hk)) $$ HX
        icases HX with ⟨X2, X3, HX⟩
        ihave X2 := (Entails.of_eq (xP_pos d L fx v2)) $$ X2
        ihave X2 := (Entails.of_eq (in_congr d L (off_6 L k v2).symm (in_inb L _) (k7_off6_inb L k k7_h3) fx)) $$ X2
        ihave X3 := (Entails.of_eq (xP_pos d L fx v3')) $$ X3
        ihave X3 := (Entails.of_eq (in_congr d L (off_11 L k v3').symm (in_inb L _) (k7_off11_inb L k k7_h6) fx)) $$ X3
        ihave HOut := (Entails.of_eq (oSet_out (oMix d L fx k.val) k.val hk)) $$ HOut
        icases HOut with ⟨Y0, Y1, HOut⟩
        ihave Y0 := (Entails.of_eq ((oMix_ge d L fx (t := k.val) (n := 2 * k.val) (by omega)).trans (oP_pos (F := F) d L v0))) $$ Y0
        icases Y0 with ⟨%f0, Y0⟩
        ihave Y0 := (Entails.of_eq (out_congr d L (off_5 L k v0).symm (out_inb L _) (k7_off5_inb L k k7_h2) f0)) $$ Y0
        ihave Y1 := (Entails.of_eq ((oMix_ge d L fx (t := k.val) (n := 2 * k.val + 1) (by omega)).trans (oP_pos (F := F) d L v1))) $$ Y1
        icases Y1 with ⟨%f1, Y1⟩
        ihave Y1 := (Entails.of_eq (out_congr d L (off_10 L k v1).symm (out_inb L _) (k7_off10_inb L k k7_h5) f1)) $$ Y1
        sl_exec
        sl_for (laneV0 d L g4) $$ [F8_dst R6]
        case region =>
          intro (j : Fin k7_t2_loop.trips) _
          unfold laneV0
          iintro ⟨HA, %g, HB, %hl⟩
          sl_exec
          sl_step
          isplitl [HA]; · iexact HA
          iexists _; isplitl [HB]; · iexact HB
          ipureintro; exact lanes_step d L a4 a6 g4 g j _ _ hl
        · unfold laneV0
          isplitl [F8_dst]; · iexact F8_dst
          iexists _; isplitl [R6]; · iexact R6
          ipureintro; exact lanes_zero d L a4 a6 g4 _
        iintro %_ HI
        unfold laneV0
        icases HI with ⟨H4, %g6', H6, %hl6⟩
        have hl6 : Lanes d L a4 a6 g4 g6' 200 := Eq.mp (congrArg (Lanes d L a4 a6 g4 g6') trips2) hl6
        sl_exec
        sl_for (laneV1 d L g5) $$ [F9_dst R7]
        case region =>
          intro (j : Fin k7_t3_loop.trips) _
          unfold laneV1
          iintro ⟨HA, %g, HB, %hl⟩
          sl_exec
          sl_step
          isplitl [HA]; · iexact HA
          iexists _; isplitl [HB]; · iexact HB
          ipureintro; exact lanes_step' d L a5 a7 g5 g j _ _ hl
        · unfold laneV1
          isplitl [F9_dst]; · iexact F9_dst
          iexists _; isplitl [R7]; · iexact R7
          ipureintro; exact lanes_zero d L a5 a7 g5 _
        iintro %_ HI
        unfold laneV1
        icases HI with ⟨H5, %g7', H7, %hl7⟩
        have hl7 : Lanes d L a5 a7 g5 g7' 200 := Eq.mp (congrArg (Lanes d L a5 a7 g5 g7') trips3) hl7
        sl_exec
        sl_step
        isplitr; · iexact Hmw
        isplitl [HO]
        · iexists _; isplitr
          rotate_left
          · iexact HO
          ipureintro; intro p hp
          rcases Finset.mem_insert.mp hp with rfl | hp
          · exact .inr rfl
          rcases Finset.mem_insert.mp hp with rfl | hp
          · exact .inr rfl
          rcases Finset.mem_insert.mp hp with rfl | hp
          · exact .inr rfl
          rcases Finset.mem_insert.mp hp with rfl | hp
          · exact .inr rfl
          exact hW' p hp
        isplitl [HX F8_src F9_src]
        · iapply (Entails.of_eq (xSet_in (xP d L fx) k.val hk).symm)
          isplitl [F8_src]; · iapply (Entails.of_eq (xP_pos d L fx v0).symm); iexact F8_src
          isplitl [F9_src]; · iapply (Entails.of_eq (xP_pos d L fx v1).symm); iexact F9_src
          iexact HX
        isplitl [HOut F10_dst F11_dst]
        · iapply (Entails.of_eq (oSet_in (oMix d L fx (k.val + 1)) k.val hk (by omega)).symm)
          isplitl [F10_dst]; · iapply (Entails.of_eq ((oMix_lt d L fx (t := k.val + 1) (n := 2 * k.val - 2) (by omega)).trans (oQ_pos d L fx hm0.2)).symm); iexact F10_dst
          isplitl [F11_dst]
          · iapply (Entails.of_eq ((oMix_lt d L fx (t := k.val + 1) (n := 2 * k.val - 1) (by omega)).trans (oQ_pos d L fx (n := 2 * k.val - 1) (by have := hm1.2; rwa [show 2 * k.val + 1 - 2 = 2 * k.val - 1 by omega] at this))).symm)
            iapply (Entails.of_eq (congrArg (oqPiece d L fx) (show 2 * k.val + 1 - 2 = 2 * k.val - 1 by omega))); iexact F11_dst
          iapply (Entails.of_eq (oMix_core d L fx k.val)); iexact HOut
        isplitl [F8]
        · iapply (Entails.of_eq (congrArg (inSlotV d L fx a4 cc7_scratch4.sem) (show 2 * k.val + 2 = 2 * (k.val + 1) by ring)))
          iapply (fl_inV d L fx (off_6 L k v2) (k7_off6_inb L k k7_h3) v2 a4 cc7_scratch4.sem); iexists _, _
          isplitr
          rotate_left
          · iexact F8
          ipureintro; intro y; rfl
        isplitl [F10 H6]
        · iapply (Entails.of_eq (congrArg (outSlotV d L fx a6 cc7_scratch6.sem) (show 2 * k.val + 2 = 2 * (k.val + 1) by ring)))
          iapply (fl_outV d L fx (off_5 L k v0) (k7_off5_inb L k k7_h2) v0 a4 a6 cc7_scratch6.sem f0 g4 g6' hl6 hin4); iexists _
          isplitr
          rotate_left
          · isplitl [F10]; · iexact F10
            iexact H6
          ipureintro; intro y; rfl
        isplitl [F9]
        · iapply (Entails.of_eq (congrArg (inSlotV d L fx a5 cc7_scratch5.sem) (show 2 * k.val + 3 = 2 * (k.val + 1) + 1 by ring)))
          iapply (fl_inV d L fx (off_11 L k v3') (k7_off11_inb L k k7_h6) v3' a5 cc7_scratch5.sem); iexists _, _
          isplitr
          rotate_left
          · iexact F9
          ipureintro; intro y; rfl
        · iapply (Entails.of_eq (congrArg (outSlotV d L fx a7 cc7_scratch7.sem) (show 2 * k.val + 1 + 2 = 2 * (k.val + 1) + 1 by ring)))
          iapply (fl_outV d L fx (off_10 L k v1) (k7_off10_inb L k k7_h5) v1 a5 a7 cc7_scratch7.sem f1 g5 g7' hl7 hin5); iexists _
          isplitr
          rotate_left
          · isplitl [F11]; · iexact F11
            iexact H7
          ipureintro; intro y; rfl
      · by_cases h6 : k.val = 6
        · have hb : ¬ big L := fun hb => v3 (Or.inr ⟨by omega, hb⟩)
          -- trip 6 of a tile with fifteen pieces: no sixteenth piece to fetch
          have k7_h1 : k7_cond1 k = 1#1 := (cond1_iff k).mpr (by omega)
          have k7_h2 : k7_cond2 L k = 1#1 := cond2_iff L k
          have k7_h3 : k7_cond3 L k = 1#1 := (cond3_iff L k).mpr (by omega)
          have k7_h4 : k7_cond4 k = 1#1 := (cond4_iff k).mpr (by omega)
          have k7_h5 : k7_cond5 L k = 1#1 := (cond5_iff L k).mpr (by first | (unfold valid big at *; omega) | (unfold big at *; omega) | omega)
          have k7_h6 : ¬ k7_cond6 L k = 1#1 := fun h => absurd ((cond6_iff L k).mp h) (by first | (unfold valid big at *; omega) | (unfold big at *; omega) | omega)
          have v0 : valid L (2 * k.val) := by unfold valid big at *; omega
          have v1 : valid L (2 * k.val + 1) := by unfold valid big at *; omega
          have v2 : valid L (2 * k.val + 2) := by unfold valid big at *; omega
          have v3' : ¬ valid L (2 * k.val + 3) := by unfold valid big at *; omega
          have hm0 : 2 ≤ 2 * k.val ∧ valid L (2 * k.val - 2) := ⟨by omega, by unfold valid big at *; omega⟩
          have hm1 : 2 ≤ 2 * k.val + 1 ∧ valid L (2 * k.val + 1 - 2) := ⟨by omega, by unfold valid big at *; omega⟩
          ihave S8 := (Entails.of_eq (inSlotV_pos d L fx v0)) $$ S8
          icases S8 with ⟨%g4, %hin4, F8⟩
          ihave S9 := (Entails.of_eq (inSlotV_pos d L fx v1)) $$ S9
          icases S9 with ⟨%g5, %hin5, F9⟩
          ihave S10 := (Entails.of_eq (outSlotV_pos d L fx hm0)) $$ S10
          icases S10 with ⟨%g6, F10, R6⟩
          ihave S11 := (Entails.of_eq (outSlotV_pos d L fx hm1)) $$ S11
          icases S11 with ⟨%g7, F11, R7⟩
          ihave HX := (Entails.of_eq (xSet_out (xP d L fx) k.val hk)) $$ HX
          icases HX with ⟨X2, -, HX⟩
          ihave X2 := (Entails.of_eq (xP_pos d L fx v2)) $$ X2
          ihave X2 := (Entails.of_eq (in_congr d L (off_6 L k v2).symm (in_inb L _) (k7_off6_inb L k k7_h3) fx)) $$ X2
          ihave HOut := (Entails.of_eq (oSet_out (oMix d L fx k.val) k.val hk)) $$ HOut
          icases HOut with ⟨Y0, Y1, HOut⟩
          ihave Y0 := (Entails.of_eq ((oMix_ge d L fx (t := k.val) (n := 2 * k.val) (by omega)).trans (oP_pos (F := F) d L v0))) $$ Y0
          icases Y0 with ⟨%f0, Y0⟩
          ihave Y0 := (Entails.of_eq (out_congr d L (off_5 L k v0).symm (out_inb L _) (k7_off5_inb L k k7_h2) f0)) $$ Y0
          ihave Y1 := (Entails.of_eq ((oMix_ge d L fx (t := k.val) (n := 2 * k.val + 1) (by omega)).trans (oP_pos (F := F) d L v1))) $$ Y1
          icases Y1 with ⟨%f1, Y1⟩
          ihave Y1 := (Entails.of_eq (out_congr d L (off_10 L k v1).symm (out_inb L _) (k7_off10_inb L k k7_h5) f1)) $$ Y1
          sl_exec
          sl_for (laneV0 d L g4) $$ [F8_dst R6]
          case region =>
            intro (j : Fin k7_t2_loop.trips) _
            unfold laneV0
            iintro ⟨HA, %g, HB, %hl⟩
            sl_exec
            sl_step
            isplitl [HA]; · iexact HA
            iexists _; isplitl [HB]; · iexact HB
            ipureintro; exact lanes_step d L a4 a6 g4 g j _ _ hl
          · unfold laneV0
            isplitl [F8_dst]; · iexact F8_dst
            iexists _; isplitl [R6]; · iexact R6
            ipureintro; exact lanes_zero d L a4 a6 g4 _
          iintro %_ HI
          unfold laneV0
          icases HI with ⟨H4, %g6', H6, %hl6⟩
          have hl6 : Lanes d L a4 a6 g4 g6' 200 := Eq.mp (congrArg (Lanes d L a4 a6 g4 g6') trips2) hl6
          sl_exec
          sl_for (laneV1 d L g5) $$ [F9_dst R7]
          case region =>
            intro (j : Fin k7_t3_loop.trips) _
            unfold laneV1
            iintro ⟨HA, %g, HB, %hl⟩
            sl_exec
            sl_step
            isplitl [HA]; · iexact HA
            iexists _; isplitl [HB]; · iexact HB
            ipureintro; exact lanes_step' d L a5 a7 g5 g j _ _ hl
          · unfold laneV1
            isplitl [F9_dst]; · iexact F9_dst
            iexists _; isplitl [R7]; · iexact R7
            ipureintro; exact lanes_zero d L a5 a7 g5 _
          iintro %_ HI
          unfold laneV1
          icases HI with ⟨H5, %g7', H7, %hl7⟩
          have hl7 : Lanes d L a5 a7 g5 g7' 200 := Eq.mp (congrArg (Lanes d L a5 a7 g5 g7') trips3) hl7
          sl_exec
          sl_step
          isplitr; · iexact Hmw
          isplitl [HO]
          · iexists _; isplitr
            rotate_left
            · iexact HO
            ipureintro; intro p hp
            rcases Finset.mem_insert.mp hp with rfl | hp
            · exact .inr rfl
            rcases Finset.mem_insert.mp hp with rfl | hp
            · exact .inr rfl
            rcases Finset.mem_insert.mp hp with rfl | hp
            · exact .inr rfl
            rcases Finset.mem_insert.mp hp with rfl | hp
            · exact .inr rfl
            exact hW' p hp
          isplitl [HX F8_src F9_src]
          · iapply (Entails.of_eq (xSet_in (xP d L fx) k.val hk).symm)
            isplitl [F8_src]; · iapply (Entails.of_eq (xP_pos d L fx v0).symm); iexact F8_src
            isplitl [F9_src]; · iapply (Entails.of_eq (xP_pos d L fx v1).symm); iexact F9_src
            iexact HX
          isplitl [HOut F10_dst F11_dst]
          · iapply (Entails.of_eq (oSet_in (oMix d L fx (k.val + 1)) k.val hk (by omega)).symm)
            isplitl [F10_dst]; · iapply (Entails.of_eq ((oMix_lt d L fx (t := k.val + 1) (n := 2 * k.val - 2) (by omega)).trans (oQ_pos d L fx hm0.2)).symm); iexact F10_dst
            isplitl [F11_dst]
            · iapply (Entails.of_eq ((oMix_lt d L fx (t := k.val + 1) (n := 2 * k.val - 1) (by omega)).trans (oQ_pos d L fx (n := 2 * k.val - 1) (by have := hm1.2; rwa [show 2 * k.val + 1 - 2 = 2 * k.val - 1 by omega] at this))).symm)
              iapply (Entails.of_eq (congrArg (oqPiece d L fx) (show 2 * k.val + 1 - 2 = 2 * k.val - 1 by omega))); iexact F11_dst
            iapply (Entails.of_eq (oMix_core d L fx k.val)); iexact HOut
          isplitl [F8]
          · iapply (Entails.of_eq (congrArg (inSlotV d L fx a4 cc7_scratch4.sem) (show 2 * k.val + 2 = 2 * (k.val + 1) by ring)))
            iapply (fl_inV d L fx (off_6 L k v2) (k7_off6_inb L k k7_h3) v2 a4 cc7_scratch4.sem); iexists _, _
            isplitr
            rotate_left
            · iexact F8
            ipureintro; intro y; rfl
          isplitl [F10 H6]
          · iapply (Entails.of_eq (congrArg (outSlotV d L fx a6 cc7_scratch6.sem) (show 2 * k.val + 2 = 2 * (k.val + 1) by ring)))
            iapply (fl_outV d L fx (off_5 L k v0) (k7_off5_inb L k k7_h2) v0 a4 a6 cc7_scratch6.sem f0 g4 g6' hl6 hin4); iexists _
            isplitr
            rotate_left
            · isplitl [F10]; · iexact F10
              iexact H6
            ipureintro; intro y; rfl
          isplitl [H5 F9]
          · iapply (Entails.of_eq (congrArg (inSlotV d L fx a5 cc7_scratch5.sem) (show 2 * k.val + 3 = 2 * (k.val + 1) + 1 by ring)))
            iapply (Entails.of_eq (inSlotV_neg d L fx v3').symm)
            isplitl [H5]; · iexists _; iexact H5
            iexact F9
          · iapply (Entails.of_eq (congrArg (outSlotV d L fx a7 cc7_scratch7.sem) (show 2 * k.val + 1 + 2 = 2 * (k.val + 1) + 1 by ring)))
            iapply (fl_outV d L fx (off_10 L k v1) (k7_off10_inb L k k7_h5) v1 a5 a7 cc7_scratch7.sem f1 g5 g7' hl7 hin5); iexists _
            isplitr
            rotate_left
            · isplitl [F11]; · iexact F11
              iexact H7
            ipureintro; intro y; rfl
        · have h7 : k.val = 7 := by unfold valid at v3; omega
          by_cases hb : big L
          · -- the last trip of a tile with sixteen pieces: nothing more to fetch
            have k7_h1 : k7_cond1 k = 1#1 := (cond1_iff k).mpr (by omega)
            have k7_h2 : k7_cond2 L k = 1#1 := cond2_iff L k
            have k7_h3 : ¬ k7_cond3 L k = 1#1 := fun h => absurd ((cond3_iff L k).mp h) (by omega)
            have k7_h4 : k7_cond4 k = 1#1 := (cond4_iff k).mpr (by omega)
            have k7_h5 : k7_cond5 L k = 1#1 := (cond5_iff L k).mpr (by first | (unfold valid big at *; omega) | (unfold big at *; omega) | omega)
            have k7_h6 : ¬ k7_cond6 L k = 1#1 := fun h => absurd ((cond6_iff L k).mp h) (by first | (unfold valid big at *; omega) | (unfold big at *; omega) | omega)
            have v0 : valid L (2 * k.val) := by unfold valid big at *; omega
            have v1 : valid L (2 * k.val + 1) := by unfold valid big at *; omega
            have v2 : ¬ valid L (2 * k.val + 2) := by unfold valid big at *; omega
            have v3' : ¬ valid L (2 * k.val + 3) := by unfold valid big at *; omega
            have hm0 : 2 ≤ 2 * k.val ∧ valid L (2 * k.val - 2) := ⟨by omega, by unfold valid big at *; omega⟩
            have hm1 : 2 ≤ 2 * k.val + 1 ∧ valid L (2 * k.val + 1 - 2) := ⟨by omega, by unfold valid big at *; omega⟩
            ihave S8 := (Entails.of_eq (inSlotV_pos d L fx v0)) $$ S8
            icases S8 with ⟨%g4, %hin4, F8⟩
            ihave S9 := (Entails.of_eq (inSlotV_pos d L fx v1)) $$ S9
            icases S9 with ⟨%g5, %hin5, F9⟩
            ihave S10 := (Entails.of_eq (outSlotV_pos d L fx hm0)) $$ S10
            icases S10 with ⟨%g6, F10, R6⟩
            ihave S11 := (Entails.of_eq (outSlotV_pos d L fx hm1)) $$ S11
            icases S11 with ⟨%g7, F11, R7⟩
            ihave HX := (Entails.of_eq (xSet_out (xP d L fx) k.val hk)) $$ HX
            icases HX with ⟨-, -, HX⟩
            ihave HOut := (Entails.of_eq (oSet_out (oMix d L fx k.val) k.val hk)) $$ HOut
            icases HOut with ⟨Y0, Y1, HOut⟩
            ihave Y0 := (Entails.of_eq ((oMix_ge d L fx (t := k.val) (n := 2 * k.val) (by omega)).trans (oP_pos (F := F) d L v0))) $$ Y0
            icases Y0 with ⟨%f0, Y0⟩
            ihave Y0 := (Entails.of_eq (out_congr d L (off_5 L k v0).symm (out_inb L _) (k7_off5_inb L k k7_h2) f0)) $$ Y0
            ihave Y1 := (Entails.of_eq ((oMix_ge d L fx (t := k.val) (n := 2 * k.val + 1) (by omega)).trans (oP_pos (F := F) d L v1))) $$ Y1
            icases Y1 with ⟨%f1, Y1⟩
            ihave Y1 := (Entails.of_eq (out_congr d L (off_10 L k v1).symm (out_inb L _) (k7_off10_inb L k k7_h5) f1)) $$ Y1
            sl_exec
            sl_for (laneV0 d L g4) $$ [F8_dst R6]
            case region =>
              intro (j : Fin k7_t2_loop.trips) _
              unfold laneV0
              iintro ⟨HA, %g, HB, %hl⟩
              sl_exec
              sl_step
              isplitl [HA]; · iexact HA
              iexists _; isplitl [HB]; · iexact HB
              ipureintro; exact lanes_step d L a4 a6 g4 g j _ _ hl
            · unfold laneV0
              isplitl [F8_dst]; · iexact F8_dst
              iexists _; isplitl [R6]; · iexact R6
              ipureintro; exact lanes_zero d L a4 a6 g4 _
            iintro %_ HI
            unfold laneV0
            icases HI with ⟨H4, %g6', H6, %hl6⟩
            have hl6 : Lanes d L a4 a6 g4 g6' 200 := Eq.mp (congrArg (Lanes d L a4 a6 g4 g6') trips2) hl6
            sl_exec
            sl_for (laneV1 d L g5) $$ [F9_dst R7]
            case region =>
              intro (j : Fin k7_t3_loop.trips) _
              unfold laneV1
              iintro ⟨HA, %g, HB, %hl⟩
              sl_exec
              sl_step
              isplitl [HA]; · iexact HA
              iexists _; isplitl [HB]; · iexact HB
              ipureintro; exact lanes_step' d L a5 a7 g5 g j _ _ hl
            · unfold laneV1
              isplitl [F9_dst]; · iexact F9_dst
              iexists _; isplitl [R7]; · iexact R7
              ipureintro; exact lanes_zero d L a5 a7 g5 _
            iintro %_ HI
            unfold laneV1
            icases HI with ⟨H5, %g7', H7, %hl7⟩
            have hl7 : Lanes d L a5 a7 g5 g7' 200 := Eq.mp (congrArg (Lanes d L a5 a7 g5 g7') trips3) hl7
            sl_exec
            sl_step
            isplitr; · iexact Hmw
            isplitl [HO]
            · iexists _; isplitr
              rotate_left
              · iexact HO
              ipureintro; intro p hp
              rcases Finset.mem_insert.mp hp with rfl | hp
              · exact .inr rfl
              rcases Finset.mem_insert.mp hp with rfl | hp
              · exact .inr rfl
              rcases Finset.mem_insert.mp hp with rfl | hp
              · exact .inr rfl
              rcases Finset.mem_insert.mp hp with rfl | hp
              · exact .inr rfl
              exact hW' p hp
            isplitl [HX F8_src F9_src]
            · iapply (Entails.of_eq (xSet_in (xP d L fx) k.val hk).symm)
              isplitl [F8_src]; · iapply (Entails.of_eq (xP_pos d L fx v0).symm); iexact F8_src
              isplitl [F9_src]; · iapply (Entails.of_eq (xP_pos d L fx v1).symm); iexact F9_src
              iexact HX
            isplitl [HOut F10_dst F11_dst]
            · iapply (Entails.of_eq (oSet_in (oMix d L fx (k.val + 1)) k.val hk (by omega)).symm)
              isplitl [F10_dst]; · iapply (Entails.of_eq ((oMix_lt d L fx (t := k.val + 1) (n := 2 * k.val - 2) (by omega)).trans (oQ_pos d L fx hm0.2)).symm); iexact F10_dst
              isplitl [F11_dst]
              · iapply (Entails.of_eq ((oMix_lt d L fx (t := k.val + 1) (n := 2 * k.val - 1) (by omega)).trans (oQ_pos d L fx (n := 2 * k.val - 1) (by have := hm1.2; rwa [show 2 * k.val + 1 - 2 = 2 * k.val - 1 by omega] at this))).symm)
                iapply (Entails.of_eq (congrArg (oqPiece d L fx) (show 2 * k.val + 1 - 2 = 2 * k.val - 1 by omega))); iexact F11_dst
              iapply (Entails.of_eq (oMix_core d L fx k.val)); iexact HOut
            isplitl [H4 F8]
            · iapply (Entails.of_eq (congrArg (inSlotV d L fx a4 cc7_scratch4.sem) (show 2 * k.val + 2 = 2 * (k.val + 1) by ring)))
              iapply (Entails.of_eq (inSlotV_neg d L fx v2).symm)
              isplitl [H4]; · iexists _; iexact H4
              iexact F8
            isplitl [F10 H6]
            · iapply (Entails.of_eq (congrArg (outSlotV d L fx a6 cc7_scratch6.sem) (show 2 * k.val + 2 = 2 * (k.val + 1) by ring)))
              iapply (fl_outV d L fx (off_5 L k v0) (k7_off5_inb L k k7_h2) v0 a4 a6 cc7_scratch6.sem f0 g4 g6' hl6 hin4); iexists _
              isplitr
              rotate_left
              · isplitl [F10]; · iexact F10
                iexact H6
              ipureintro; intro y; rfl
            isplitl [H5 F9]
            · iapply (Entails.of_eq (congrArg (inSlotV d L fx a5 cc7_scratch5.sem) (show 2 * k.val + 3 = 2 * (k.val + 1) + 1 by ring)))
              iapply (Entails.of_eq (inSlotV_neg d L fx v3').symm)
              isplitl [H5]; · iexists _; iexact H5
              iexact F9
            · iapply (Entails.of_eq (congrArg (outSlotV d L fx a7 cc7_scratch7.sem) (show 2 * k.val + 1 + 2 = 2 * (k.val + 1) + 1 by ring)))
              iapply (fl_outV d L fx (off_10 L k v1) (k7_off10_inb L k k7_h5) v1 a5 a7 cc7_scratch7.sem f1 g5 g7' hl7 hin5); iexists _
              isplitr
              rotate_left
              · isplitl [F11]; · iexact F11
                iexact H7
              ipureintro; intro y; rfl
          · -- the last trip of a tile with fifteen pieces: the second slot only drains
            have k7_h1 : k7_cond1 k = 1#1 := (cond1_iff k).mpr (by omega)
            have k7_h2 : k7_cond2 L k = 1#1 := cond2_iff L k
            have k7_h3 : ¬ k7_cond3 L k = 1#1 := fun h => absurd ((cond3_iff L k).mp h) (by omega)
            have k7_h4 : k7_cond4 k = 1#1 := (cond4_iff k).mpr (by omega)
            have k7_h5 : ¬ k7_cond5 L k = 1#1 := fun h => absurd ((cond5_iff L k).mp h) (by first | (unfold valid big at *; omega) | (unfold big at *; omega) | omega)
            have k7_h6 : ¬ k7_cond6 L k = 1#1 := fun h => absurd ((cond6_iff L k).mp h) (by first | (unfold valid big at *; omega) | (unfold big at *; omega) | omega)
            have v0 : valid L (2 * k.val) := by unfold valid big at *; omega
            have v1 : ¬ valid L (2 * k.val + 1) := by unfold valid big at *; omega
            have v2 : ¬ valid L (2 * k.val + 2) := by unfold valid big at *; omega
            have v3' : ¬ valid L (2 * k.val + 3) := by unfold valid big at *; omega
            have hm0 : 2 ≤ 2 * k.val ∧ valid L (2 * k.val - 2) := ⟨by omega, by unfold valid big at *; omega⟩
            have hm1 : 2 ≤ 2 * k.val + 1 ∧ valid L (2 * k.val + 1 - 2) := ⟨by omega, by unfold valid big at *; omega⟩
            ihave S8 := (Entails.of_eq (inSlotV_pos d L fx v0)) $$ S8
            icases S8 with ⟨%g4, %hin4, F8⟩
            ihave S9 := (Entails.of_eq (inSlotV_neg d L fx v1)) $$ S9
            icases S9 with ⟨⟨%g5, H5⟩, F9⟩
            ihave S10 := (Entails.of_eq (outSlotV_pos d L fx hm0)) $$ S10
            icases S10 with ⟨%g6, F10, R6⟩
            ihave S11 := (Entails.of_eq (outSlotV_pos d L fx hm1)) $$ S11
            icases S11 with ⟨%g7, F11, R7⟩
            ihave HX := (Entails.of_eq (xSet_out (xP d L fx) k.val hk)) $$ HX
            icases HX with ⟨-, -, HX⟩
            ihave HOut := (Entails.of_eq (oSet_out (oMix d L fx k.val) k.val hk)) $$ HOut
            icases HOut with ⟨Y0, -, HOut⟩
            ihave Y0 := (Entails.of_eq ((oMix_ge d L fx (t := k.val) (n := 2 * k.val) (by omega)).trans (oP_pos (F := F) d L v0))) $$ Y0
            icases Y0 with ⟨%f0, Y0⟩
            ihave Y0 := (Entails.of_eq (out_congr d L (off_5 L k v0).symm (out_inb L _) (k7_off5_inb L k k7_h2) f0)) $$ Y0
            sl_exec
            sl_for (laneV0 d L g4) $$ [F8_dst R6]
            case region =>
              intro (j : Fin k7_t2_loop.trips) _
              unfold laneV0
              iintro ⟨HA, %g, HB, %hl⟩
              sl_exec
              sl_step
              isplitl [HA]; · iexact HA
              iexists _; isplitl [HB]; · iexact HB
              ipureintro; exact lanes_step d L a4 a6 g4 g j _ _ hl
            · unfold laneV0
              isplitl [F8_dst]; · iexact F8_dst
              iexists _; isplitl [R6]; · iexact R6
              ipureintro; exact lanes_zero d L a4 a6 g4 _
            iintro %_ HI
            unfold laneV0
            icases HI with ⟨H4, %g6', H6, %hl6⟩
            have hl6 : Lanes d L a4 a6 g4 g6' 200 := Eq.mp (congrArg (Lanes d L a4 a6 g4 g6') trips2) hl6
            sl_exec
            sl_step
            isplitr; · iexact Hmw
            isplitl [HO]
            · iexists _; isplitr
              rotate_left
              · iexact HO
              ipureintro; intro p hp
              rcases Finset.mem_insert.mp hp with rfl | hp
              · exact .inr rfl
              rcases Finset.mem_insert.mp hp with rfl | hp
              · exact .inr rfl
              rcases Finset.mem_insert.mp hp with rfl | hp
              · exact .inr rfl
              exact hW' p hp
            isplitl [HX F8_src]
            · iapply (Entails.of_eq (xSet_in (xP d L fx) k.val hk).symm)
              isplitl [F8_src]; · iapply (Entails.of_eq (xP_pos d L fx v0).symm); iexact F8_src
              isplitr; · iapply (Entails.of_eq (xP_neg d L fx v1).symm); iempintro
              iexact HX
            isplitl [HOut F10_dst F11_dst]
            · iapply (Entails.of_eq (oSet_in (oMix d L fx (k.val + 1)) k.val hk (by omega)).symm)
              isplitl [F10_dst]; · iapply (Entails.of_eq ((oMix_lt d L fx (t := k.val + 1) (n := 2 * k.val - 2) (by omega)).trans (oQ_pos d L fx hm0.2)).symm); iexact F10_dst
              isplitl [F11_dst]
              · iapply (Entails.of_eq ((oMix_lt d L fx (t := k.val + 1) (n := 2 * k.val - 1) (by omega)).trans (oQ_pos d L fx (n := 2 * k.val - 1) (by have := hm1.2; rwa [show 2 * k.val + 1 - 2 = 2 * k.val - 1 by omega] at this))).symm)
                iapply (Entails.of_eq (congrArg (oqPiece d L fx) (show 2 * k.val + 1 - 2 = 2 * k.val - 1 by omega))); iexact F11_dst
              iapply (Entails.of_eq (oMix_core d L fx k.val)); iexact HOut
            isplitl [H4 F8]
            · iapply (Entails.of_eq (congrArg (inSlotV d L fx a4 cc7_scratch4.sem) (show 2 * k.val + 2 = 2 * (k.val + 1) by ring)))
              iapply (Entails.of_eq (inSlotV_neg d L fx v2).symm)
              isplitl [H4]; · iexists _; iexact H4
              iexact F8
            isplitl [F10 H6]
            · iapply (Entails.of_eq (congrArg (outSlotV d L fx a6 cc7_scratch6.sem) (show 2 * k.val + 2 = 2 * (k.val + 1) by ring)))
              iapply (fl_outV d L fx (off_5 L k v0) (k7_off5_inb L k k7_h2) v0 a4 a6 cc7_scratch6.sem f0 g4 g6' hl6 hin4); iexists _
              isplitr
              rotate_left
              · isplitl [F10]; · iexact F10
                iexact H6
              ipureintro; intro y; rfl
            isplitl [H5 F9]
            · iapply (Entails.of_eq (congrArg (inSlotV d L fx a5 cc7_scratch5.sem) (show 2 * k.val + 3 = 2 * (k.val + 1) + 1 by ring)))
              iapply (Entails.of_eq (inSlotV_neg d L fx v3').symm)
              isplitl [H5]; · iexists _; iexact H5
              iexact F9
            · iapply (Entails.of_eq (outSlotV_neg d L fx (m := 2 * (k.val + 1) + 1) (by intro h; apply v1; have := h.2; rwa [show 2 * (k.val + 1) + 1 - 2 = 2 * k.val + 1 by omega] at this)).symm)
              isplitl [R7]; · iexists _; iexact R7
              iexact F11
    · have hk0 : k.val = 0 := by omega
      -- the first trip: nothing to drain
      have k7_h1 : ¬ k7_cond1 k = 1#1 := fun h => absurd ((cond1_iff k).mp h) (by omega)
      have k7_h2 : k7_cond2 L k = 1#1 := cond2_iff L k
      have k7_h3 : k7_cond3 L k = 1#1 := (cond3_iff L k).mpr (by omega)
      have k7_h4 : ¬ k7_cond4 k = 1#1 := fun h => absurd ((cond4_iff k).mp h) (by omega)
      have k7_h5 : k7_cond5 L k = 1#1 := (cond5_iff L k).mpr (by first | (unfold valid big at *; omega) | (unfold big at *; omega) | omega)
      have k7_h6 : k7_cond6 L k = 1#1 := (cond6_iff L k).mpr (by first | (unfold valid big at *; omega) | (unfold big at *; omega) | omega)
      have v0 : valid L (2 * k.val) := by unfold valid big at *; omega
      have v1 : valid L (2 * k.val + 1) := by unfold valid big at *; omega
      have v2 : valid L (2 * k.val + 2) := by unfold valid big at *; omega
      have v3' : valid L (2 * k.val + 3) := by unfold valid big at *; omega
      have hm0 : ¬ (2 ≤ 2 * k.val ∧ valid L (2 * k.val - 2)) := by omega
      have hm1 : ¬ (2 ≤ 2 * k.val + 1 ∧ valid L (2 * k.val + 1 - 2)) := by omega
      ihave S8 := (Entails.of_eq (inSlotV_pos d L fx v0)) $$ S8
      icases S8 with ⟨%g4, %hin4, F8⟩
      ihave S9 := (Entails.of_eq (inSlotV_pos d L fx v1)) $$ S9
      icases S9 with ⟨%g5, %hin5, F9⟩
      ihave S10 := (Entails.of_eq (outSlotV_neg d L fx hm0)) $$ S10
      icases S10 with ⟨⟨%g6, R6⟩, F10⟩
      ihave S11 := (Entails.of_eq (outSlotV_neg d L fx hm1)) $$ S11
      icases S11 with ⟨⟨%g7, R7⟩, F11⟩
      ihave HX := (Entails.of_eq (xSet_out (xP d L fx) k.val hk)) $$ HX
      icases HX with ⟨X2, X3, HX⟩
      ihave X2 := (Entails.of_eq (xP_pos d L fx v2)) $$ X2
      ihave X2 := (Entails.of_eq (in_congr d L (off_6 L k v2).symm (in_inb L _) (k7_off6_inb L k k7_h3) fx)) $$ X2
      ihave X3 := (Entails.of_eq (xP_pos d L fx v3')) $$ X3
      ihave X3 := (Entails.of_eq (in_congr d L (off_11 L k v3').symm (in_inb L _) (k7_off11_inb L k k7_h6) fx)) $$ X3
      ihave HOut := (Entails.of_eq (oSet_out (oMix d L fx k.val) k.val hk)) $$ HOut
      icases HOut with ⟨Y0, Y1, HOut⟩
      ihave Y0 := (Entails.of_eq ((oMix_ge d L fx (t := k.val) (n := 2 * k.val) (by omega)).trans (oP_pos (F := F) d L v0))) $$ Y0
      icases Y0 with ⟨%f0, Y0⟩
      ihave Y0 := (Entails.of_eq (out_congr d L (off_5 L k v0).symm (out_inb L _) (k7_off5_inb L k k7_h2) f0)) $$ Y0
      ihave Y1 := (Entails.of_eq ((oMix_ge d L fx (t := k.val) (n := 2 * k.val + 1) (by omega)).trans (oP_pos (F := F) d L v1))) $$ Y1
      icases Y1 with ⟨%f1, Y1⟩
      ihave Y1 := (Entails.of_eq (out_congr d L (off_10 L k v1).symm (out_inb L _) (k7_off10_inb L k k7_h5) f1)) $$ Y1
      sl_exec
      sl_for (laneV0 d L g4) $$ [F8_dst R6]
      case region =>
        intro (j : Fin k7_t2_loop.trips) _
        unfold laneV0
        iintro ⟨HA, %g, HB, %hl⟩
        sl_exec
        sl_step
        isplitl [HA]; · iexact HA
        iexists _; isplitl [HB]; · iexact HB
        ipureintro; exact lanes_step d L a4 a6 g4 g j _ _ hl
      · unfold laneV0
        isplitl [F8_dst]; · iexact F8_dst
        iexists _; isplitl [R6]; · iexact R6
        ipureintro; exact lanes_zero d L a4 a6 g4 _
      iintro %_ HI
      unfold laneV0
      icases HI with ⟨H4, %g6', H6, %hl6⟩
      have hl6 : Lanes d L a4 a6 g4 g6' 200 := Eq.mp (congrArg (Lanes d L a4 a6 g4 g6') trips2) hl6
      sl_exec
      sl_for (laneV1 d L g5) $$ [F9_dst R7]
      case region =>
        intro (j : Fin k7_t3_loop.trips) _
        unfold laneV1
        iintro ⟨HA, %g, HB, %hl⟩
        sl_exec
        sl_step
        isplitl [HA]; · iexact HA
        iexists _; isplitl [HB]; · iexact HB
        ipureintro; exact lanes_step' d L a5 a7 g5 g j _ _ hl
      · unfold laneV1
        isplitl [F9_dst]; · iexact F9_dst
        iexists _; isplitl [R7]; · iexact R7
        ipureintro; exact lanes_zero d L a5 a7 g5 _
      iintro %_ HI
      unfold laneV1
      icases HI with ⟨H5, %g7', H7, %hl7⟩
      have hl7 : Lanes d L a5 a7 g5 g7' 200 := Eq.mp (congrArg (Lanes d L a5 a7 g5 g7') trips3) hl7
      sl_exec
      sl_step
      isplitr; · iexact Hmw
      isplitl [HO]
      · iexists _; isplitr
        rotate_left
        · iexact HO
        ipureintro; intro p hp
        rcases Finset.mem_insert.mp hp with rfl | hp
        · exact .inr rfl
        rcases Finset.mem_insert.mp hp with rfl | hp
        · exact .inr rfl
        exact hW' p hp
      isplitl [HX F8_src F9_src]
      · iapply (Entails.of_eq (xSet_in (xP d L fx) k.val hk).symm)
        isplitl [F8_src]; · iapply (Entails.of_eq (xP_pos d L fx v0).symm); iexact F8_src
        isplitl [F9_src]; · iapply (Entails.of_eq (xP_pos d L fx v1).symm); iexact F9_src
        iexact HX
      isplitl [HOut]
      · iapply (Entails.of_eq (congrArg (fun s => bigSep s (oMix d L fx (k.val + 1))) (show oCore k.val = oSet (k.val + 1) by rw [hk0]; decide)))
        iapply (Entails.of_eq (oMix_core d L fx k.val)); iexact HOut
      isplitl [F8]
      · iapply (Entails.of_eq (congrArg (inSlotV d L fx a4 cc7_scratch4.sem) (show 2 * k.val + 2 = 2 * (k.val + 1) by ring)))
        iapply (fl_inV d L fx (off_6 L k v2) (k7_off6_inb L k k7_h3) v2 a4 cc7_scratch4.sem); iexists _, _
        isplitr
        rotate_left
        · iexact F8
        ipureintro; intro y; rfl
      isplitl [F10 H6]
      · iapply (Entails.of_eq (congrArg (outSlotV d L fx a6 cc7_scratch6.sem) (show 2 * k.val + 2 = 2 * (k.val + 1) by ring)))
        iapply (fl_outV d L fx (off_5 L k v0) (k7_off5_inb L k k7_h2) v0 a4 a6 cc7_scratch6.sem f0 g4 g6' hl6 hin4); iexists _
        isplitr
        rotate_left
        · isplitl [F10]; · iexact F10
          iexact H6
        ipureintro; intro y; rfl
      isplitl [F9]
      · iapply (Entails.of_eq (congrArg (inSlotV d L fx a5 cc7_scratch5.sem) (show 2 * k.val + 3 = 2 * (k.val + 1) + 1 by ring)))
        iapply (fl_inV d L fx (off_11 L k v3') (k7_off11_inb L k k7_h6) v3' a5 cc7_scratch5.sem); iexists _, _
        isplitr
        rotate_left
        · iexact F9
        ipureintro; intro y; rfl
      · iapply (Entails.of_eq (congrArg (outSlotV d L fx a7 cc7_scratch7.sem) (show 2 * k.val + 1 + 2 = 2 * (k.val + 1) + 1 by ring)))
        iapply (fl_outV d L fx (off_10 L k v1) (k7_off10_inb L k k7_h5) v1 a5 a7 cc7_scratch7.sem f1 g5 g7' hl7 hin5); iexists _
        isplitr
        rotate_left
        · isplitl [F11]; · iexact F11
          iexact H7
        ipureintro; intro y; rfl
  · unfold invV
    isplitr; · iexact Hmw
    isplitl [HO]
    · iexists W; isplitr
      · ipureintro; exact fun p hp => .inl hp
      · iexact HO
    isplitl [HX]; · iexact HX
    isplitl [HOut]; · iapply (Entails.of_eq (oMix_zero d L fx).symm); iexact HOut
    isplitl [S8]; · iexact S8
    isplitl [H6 Hs10]
    · rw [outSlotV_neg d L fx (by omega)]; isplitl [H6]; · iexists _; iexact H6
      iexact Hs10
    isplitl [S9]; · iexact S9
    rw [outSlotV_neg d L fx (by omega)]; isplitl [H7]; · iexists _; iexact H7
    iexact Hs11
  iintro %acc' HI
  ihave HI := (Entails.of_eq (congrArg (fun t => invV d L O W fx t acc') trips1)) $$ HI
  unfold invV
  icases HI with ⟨-, ⟨%W', %hW', HO⟩, HX, HOut, S8, S10, S9, S11⟩
  have nv16 : ¬ valid L (2 * 8) := by unfold valid; omega
  have nv17 : ¬ valid L (2 * 8 + 1) := by unfold valid; omega
  have hm14 : 2 ≤ 2 * 8 ∧ valid L (2 * 8 - 2) := ⟨by omega, Or.inl (by omega)⟩
  ihave S8 := (Entails.of_eq (inSlotV_neg d L fx nv16)) $$ S8
  icases S8 with ⟨⟨%g4', H4⟩, Hs8⟩
  ihave S9 := (Entails.of_eq (inSlotV_neg d L fx nv17)) $$ S9
  icases S9 with ⟨⟨%g5', H5⟩, Hs9⟩
  ihave S10 := (Entails.of_eq (outSlotV_pos d L fx hm14)) $$ S10
  icases S10 with ⟨%g6', F10, R6⟩
  by_cases hb : big L
  · have k7_h8 : k7_cond8 L = 1#1 := (cond8_iff L).mpr hb
    have hm15 : 2 ≤ 2 * 8 + 1 ∧ valid L (2 * 8 + 1 - 2) := ⟨by omega, Or.inr ⟨by omega, hb⟩⟩
    ihave S11 := (Entails.of_eq (outSlotV_pos d L fx hm15)) $$ S11
    icases S11 with ⟨%g7', F11, R7⟩
    sl_exec
    sl_step
    isplitl [HX]; · iapply (xRange_end d L fx); iexact HX
    isplitl [HOut F10_dst F11_dst]
    · iapply (Entails.of_eq (oRange_end (oQ d L fx)).symm)
      isplitl [F10_dst]; · iapply (Entails.of_eq (oQ_pos d L fx hm14.2).symm); iexact F10_dst
      isplitl [F11_dst]; · iapply (Entails.of_eq (oQ_pos d L fx hm15.2).symm); iexact F11_dst
      iapply (Entails.of_eq (oMix_end d L fx)); iexact HOut
    isplitl [H4]; · iexists _; iexact H4
    isplitl [H5]; · iexists _; iexact H5
    isplitl [R6]; · iexists _; iexact R6
    isplitl [R7]; · iexists _; iexact R7
    isplitl [Hs8]; · iexact Hs8
    isplitl [Hs9]; · iexact Hs9
    isplitl [F10]; · iexact F10
    isplitl [F11]; · iexact F11
    isplitl [HO]
    · iexists _; isplitr
      rotate_left
      · iexact HO
      ipureintro; intro p hp
      rcases Finset.mem_insert.mp hp with rfl | hp
      · exact .inr rfl
      rcases Finset.mem_insert.mp hp with rfl | hp
      · exact .inr rfl
      exact hW' p hp
    iexact HR
  · have k7_h8 : ¬ k7_cond8 L = 1#1 := fun h => hb ((cond8_iff L).mp h)
    have hm15 : ¬ (2 ≤ 2 * 8 + 1 ∧ valid L (2 * 8 + 1 - 2)) := by intro h; have := h.2; unfold valid at this; omega
    ihave S11 := (Entails.of_eq (outSlotV_neg d L fx hm15)) $$ S11
    icases S11 with ⟨⟨%g7', R7⟩, F11⟩
    sl_exec
    sl_step
    isplitl [HX]; · iapply (xRange_end d L fx); iexact HX
    isplitl [HOut F10_dst]
    · iapply (Entails.of_eq (oRange_end (oQ d L fx)).symm)
      isplitl [F10_dst]; · iapply (Entails.of_eq (oQ_pos d L fx hm14.2).symm); iexact F10_dst
      isplitr; · iapply (Entails.of_eq (oQ_neg d L fx (n := 15) (by unfold valid; omega)).symm); iempintro
      iapply (Entails.of_eq (oMix_end d L fx)); iexact HOut
    isplitl [H4]; · iexists _; iexact H4
    isplitl [H5]; · iexists _; iexact H5
    isplitl [R6]; · iexists _; iexact R6
    isplitl [R7]; · iexists _; iexact R7
    isplitl [Hs8]; · iexact Hs8
    isplitl [Hs9]; · iexact Hs9
    isplitl [F10]; · iexact F10
    isplitl [F11]; · iexact F11
    isplitl [HO]
    · iexists _; isplitr
      rotate_left
      · iexact HO
      ipureintro; intro p hp
      rcases Finset.mem_insert.mp hp with rfl | hp
      · exact .inr rfl
      exact hW' p hp
    iexact HR

/-! The subcore's scoped storage: the four staging buffers and the four semaphores of this call, and the rest. -/

abbrev c8 : GSem nD τ sig := (thr d L, SemLoc.dma cc7_scratch4.sem)
abbrev c9 : GSem nD τ sig := (thr d L, SemLoc.dma cc7_scratch5.sem)
abbrev c10 : GSem nD τ sig := (thr d L, SemLoc.dma cc7_scratch6.sem)
abbrev c11 : GSem nD τ sig := (thr d L, SemLoc.dma cc7_scratch7.sem)

omit [FloatOps F] in
theorem ownSems0_V :
    (ownSems0 (thr d L) : sProp 𝕄)
      = iprop(semVal (c8 d L) 0 ∗ semVal (c9 d L) 0 ∗ semVal (c10 d L) 0 ∗ semVal (c11 d L) 0
          ∗ bigSep (((((ownCells (thr d L)).erase (c8 d L)).erase (c9 d L)).erase (c10 d L)).erase (c11 d L)) fun g => semVal g 0) := by
  unfold SparseCore.Cfg.ownSems0
  rw [SparseCore.bigSep_erase' ((mem_ownCells (g := c8 d L)).mpr ⟨rfl, by
      show (SemLoc.dma cc7_scratch4.sem : SemLoc sig).isScoped .scVector = true; decide⟩),
    SparseCore.bigSep_erase' (Finset.mem_erase.mpr ⟨fun e => absurd (Prod.mk.inj e).2 (by decide), (mem_ownCells (g := c9 d L)).mpr ⟨rfl, by
      show (SemLoc.dma cc7_scratch5.sem : SemLoc sig).isScoped .scVector = true; decide⟩⟩),
    SparseCore.bigSep_erase' (Finset.mem_erase.mpr ⟨fun e => absurd (Prod.mk.inj e).2 (by decide), Finset.mem_erase.mpr ⟨fun e => absurd (Prod.mk.inj e).2 (by decide),
      (mem_ownCells (g := c10 d L)).mpr ⟨rfl, by show (SemLoc.dma cc7_scratch6.sem : SemLoc sig).isScoped .scVector = true; decide⟩⟩⟩),
    SparseCore.bigSep_erase' (Finset.mem_erase.mpr ⟨fun e => absurd (Prod.mk.inj e).2 (by decide), Finset.mem_erase.mpr ⟨fun e => absurd (Prod.mk.inj e).2 (by decide),
      Finset.mem_erase.mpr ⟨fun e => absurd (Prod.mk.inj e).2 (by decide),
      (mem_ownCells (g := c11 d L)).mpr ⟨rfl, by show (SemLoc.dma cc7_scratch7.sem : SemLoc sig).isScoped .scVector = true; decide⟩⟩⟩⟩)]

abbrev pV (L : grid7.Coords) : Proc τ := Proc.scVector (cV L) (jV L)

omit [FloatOps F] in
theorem ownBufs_V :
    (ownBufs (thr d L) : sProp 𝕄)
      = iprop((∃ f, (thr d L).loc cc7_scratch0 ↦{fullShare} f) ∗ (∃ f, (thr d L).loc cc7_scratch1 ↦{fullShare} f)
          ∗ (∃ f, (thr d L).loc cc7_scratch2 ↦{fullShare} f) ∗ (∃ f, (thr d L).loc cc7_scratch3 ↦{fullShare} f)
          ∗ bigSep (((((ownRefs (τ := τ) (pV L)).erase ((pV L).devRef cc7_scratch0)).erase ((pV L).devRef cc7_scratch1)).erase
              ((pV L).devRef cc7_scratch2)).erase ((pV L).devRef cc7_scratch3))
              fun b => iprop(∃ f, ((d, b) : Loc nD τ sig) ↦{fullShare} f)) := by
  unfold SparseCore.Cfg.ownBufs
  refine (SparseCore.bigSep_erase' (SparseCore.Cfg.mem_ownRefs_of_owner (p := pV L) (b := (pV L).devRef cc7_scratch0) rfl)).trans ?_
  rw [SparseCore.bigSep_erase' (Finset.mem_erase.mpr ⟨fun e => absurd (Proc.devRef_injective _ e) (show (cc7_scratch1 : Ref sig .scVector) ≠ cc7_scratch0 by decide),
      SparseCore.Cfg.mem_ownRefs_of_owner (p := pV L) (b := (pV L).devRef cc7_scratch1) rfl⟩),
    SparseCore.bigSep_erase' (Finset.mem_erase.mpr ⟨fun e => absurd (Proc.devRef_injective _ e) (show (cc7_scratch2 : Ref sig .scVector) ≠ cc7_scratch1 by decide),
      Finset.mem_erase.mpr ⟨fun e => absurd (Proc.devRef_injective _ e) (show (cc7_scratch2 : Ref sig .scVector) ≠ cc7_scratch0 by decide),
      SparseCore.Cfg.mem_ownRefs_of_owner (p := pV L) (b := (pV L).devRef cc7_scratch2) rfl⟩⟩),
    SparseCore.bigSep_erase' (Finset.mem_erase.mpr ⟨fun e => absurd (Proc.devRef_injective _ e) (show (cc7_scratch3 : Ref sig .scVector) ≠ cc7_scratch2 by decide),
      Finset.mem_erase.mpr ⟨fun e => absurd (Proc.devRef_injective _ e) (show (cc7_scratch3 : Ref sig .scVector) ≠ cc7_scratch1 by decide),
      Finset.mem_erase.mpr ⟨fun e => absurd (Proc.devRef_injective _ e) (show (cc7_scratch3 : Ref sig .scVector) ≠ cc7_scratch0 by decide),
      SparseCore.Cfg.mem_ownRefs_of_owner (p := pV L) (b := (pV L).devRef cc7_scratch3) rfl⟩⟩⟩)]

/-- The rest of the subcore's scoped storage, which the task does not touch. -/
def restR : sProp 𝕄 :=
  iprop((bigSep (((((ownRefs (τ := τ) (pV L)).erase ((pV L).devRef cc7_scratch0)).erase ((pV L).devRef cc7_scratch1)).erase
              ((pV L).devRef cc7_scratch2)).erase ((pV L).devRef cc7_scratch3))
              fun b => iprop(∃ f, ((d, b) : Loc nD τ sig) ↦{fullShare} f))
      ∗ bigSep (((((ownCells (thr d L)).erase (c8 d L)).erase (c9 d L)).erase (c10 d L)).erase (c11 d L)) fun g => semVal g 0)

theorem body_pre (hO : ∀ g, O g none = 0) :
    iprop(levAts (K (F := F)).L (K (F := F)).lev ∗ emp ∗ goRes d L fx ∗ ownBufs (thr d L) ∗ ownSems0 (thr d L) ∗ owes (thr d L) O W)
      ⊢ runPre d L O W fx (restR (F := F) d L) := by
  rw [ownSems0_V, ownBufs_V]
  unfold goRes runPre restR
  iintro ⟨#Hlv, -, ⟨HX, HOut⟩, ⟨H4, H5, H6, H7, Hbufs⟩, ⟨Hs8, Hs9, Hs10, Hs11, Hsems⟩, HO⟩
  ihave Hmw := ((K (F := F)).mayWaits_none (thr := thr d L) hO) $$ Hlv
  isplitr; · iexact Hmw
  isplitl [HO]; · iexact HO
  isplitl [HX]; · iexact HX
  isplitl [HOut]; · iexact HOut
  isplitl [H4]; · iexact H4
  isplitl [H5]; · iexact H5
  isplitl [H6]; · iexact H6
  isplitl [H7]; · iexact H7
  isplitl [Hs8]; · iexact Hs8
  isplitl [Hs9]; · iexact Hs9
  isplitl [Hs10]; · iexact Hs10
  isplitl [Hs11]; · iexact Hs11
  isplitl [Hbufs]; · iexact Hbufs
  iexact Hsems

theorem body_post :
    runPost d L O W fx (restR (F := F) d L)
      ⊢ iprop(tdRes d L fx ∗ ownBufs (thr d L) ∗ ownSems0 (thr d L) ∗ ∃ W', ⌜∀ p ∈ W', p ∈ W ∨ p.2 = none⌝ ∗ owes (thr d L) O W') := by
  rw [ownSems0_V, ownBufs_V]
  unfold tdRes runPost restR
  iintro ⟨HX, HOut, H4, H5, H6, H7, Hs8, Hs9, Hs10, Hs11, HW, Hbufs, Hsems⟩
  isplitl [HX HOut]
  · isplitl [HX]; · iexact HX
    iexact HOut
  isplitl [H4 H5 H6 H7 Hbufs]
  · isplitl [H4]; · iexact H4
    isplitl [H5]; · iexact H5
    isplitl [H6]; · iexact H6
    isplitl [H7]; · iexact H7
    iexact Hbufs
  isplitl [Hs8 Hs9 Hs10 Hs11 Hsems]
  · isplitl [Hs8]; · iexact Hs8
    isplitl [Hs9]; · iexact Hs9
    isplitl [Hs10]; · iexact Hs10
    isplitl [Hs11]; · iexact Hs11
    iexact Hsems
  iexact HW

/-- The task in the launch theorem's shape: from what the call hands the tile and the subcore's scoped storage to
    what the tile hands back and the storage again. -/
theorem tile_body (hF : (K (F := F)).Facts) (hO : ∀ g, O g none = 0) :
    iprop(levAts (K (F := F)).L (K (F := F)).lev ∗ emp ∗ goRes d L fx ∗ scopedBufs (thr d L) ∗ scopedSems0 (thr d L) ∗ owes (thr d L) O W)
      ⊢ wp frame (wpE (defs₀ (F := F)) 𝒱₀ (thr d L) none) Set.univ
          (cc7_sc_group L xtW (Memref.isWhole_whole _) oW (Memref.isWhole_whole _) a4 (Memref.isWhole_whole _) a5 (Memref.isWhole_whole _)
            a6 (Memref.isWhole_whole _) a7 (Memref.isWhole_whole _) cc7_scratch4 cc7_scratch5 cc7_scratch6 cc7_scratch7)
          fun _ => iprop(tdRes d L fx ∗ scopedBufs (thr d L) ∗ scopedSems0 (thr d L)
            ∗ ∃ W', ⌜∀ p ∈ W', p ∈ W ∨ p.2 = none⌝ ∗ owes (thr d L) O W') := by
  rw [(K (F := F)).scopedBufs_V hF d (cV L) (jV L), SparseCore.Cfg.scopedSems0_V (Val := Elt F) d (cV L) (jV L)]
  exact (body_pre d L O W fx hO).trans ((tile_run d L O W fx (restR (F := F) d L)).trans (wp_mono frame _ _ fun _ => body_post d L O W fx))

end Tile

end Cert.Proof.TileK7

end
-- ==== Proof.TileBVal7.lean ====
/-
  What the staging buffers of one vector subcore hold while it copies a piece of 3200 consecutive elements of row 7 of
  the transposed argument into the flat result, read index by index. No program and no ownership here: only the contents.

  A transfer lands the piece in row 0 of an 8 × 3200 staging array (`InRow`: position (0, t) of that row holds element
  (0, pos + t) of the transposed argument, `pos` the piece's first column). A loop of 200 trips copies that row, 16 lanes
  per trip, into the first 3200 elements of a flat staging array of 25600: trip `j` reads the 1 × 16 window at columns
  [16 j, 16 j + 16) of row 0 and writes it, flattened, at elements [16 j, 16 j + 16). After `j` trips the first 16 j
  elements of the flat array are the first 16 j elements of the row (`Lanes`); a trip extends the prefix by 16
  (`lanes_step`: an element below 16 j is outside the window written and keeps its value, an element of the window reads
  the lane written there, which is the row's element at the same column). A second transfer writes the first 3200
  elements of the flat array to the piece of the result at the same `pos`; so every element of that piece of the result
  holds the element of row 7 of the transposed argument at its own position (`out_written`): the composite of the three
  index maps t ↦ (0, pos + t) ↦ (0, t) ↦ t ↦ pos + t is the identity on positions of the row.
-/
import proofs.«206869_g37898791420194_cont_8to1_b_558_20_alg».proof.Proof.TileB7Defs
import proofs.«206869_g37898791420194_cont_8to1_b_558_20_alg».proof.Proof.Spec
import Idealize.ShloMosaic.Lib.WritesUnit
import Idealize.ShloMosaic.Lib.ValueLayout

noncomputable section

namespace Cert.Proof.TileBVal7

open Cert.Proof.TileB7 Cert.Kernel Cert.Kernel.Gen
open Idealize.ShloMosaic Idealize.ShloMosaic.ValueIdx

variable {F : FTy → Type} [FloatOps F]
variable (d : Dev nD) (L : grid7.Coords)
variable (fx : Buf (Elt F) ((Memref.whole main_v0_scv : Memref sig .scVector .hbm S22x1600000 .f32).view.loc (thr d L)))

abbrev rowRect : Rect S8x3200 := Rect.unit (s := S8x3200) ![0, 0] S1x3200.size inb_S8x3200_S1x3200_0_0

/-- row 0 of the staging array is piece n of the argument row -/
def InRow (a : Memref sig .scVector .vmem S8x3200 .f32) (ga : Buf (Elt F) (a.view.loc (thr d L))) (n : ℕ) : Prop :=
  ∀ y : S1x3200.Idx, a.view.read (Elt F) ga (rowRect.emb y) = (inM L n).view.read (Elt F) fx y

theorem inRow_fetch (a : Memref sig .scVector .vmem S8x3200 .f32) (gold : Buf (Elt F) (a.view.loc (thr d L)))
    (w : S1x3200.Idx → Elt F .f32) (n : ℕ) (hw : ∀ y, w y = (inM L n).view.read (Elt F) fx y) :
    InRow d L fx a (a.view.writes (Elt F) gold [⟨rowRect, w⟩]) n :=
  fun y => (View.read_writes_cons_emb a.view gold rowRect w [] y).trans (hw y)

def Lanes (a : Memref sig .scVector .vmem S8x3200 .f32) (b : Memref sig .scVector .vmem S25600 .f32)
    (ga : Buf (Elt F) (a.view.loc (thr d L))) (gb : Buf (Elt F) (b.view.loc (thr d L))) (j : ℕ) : Prop :=
  ∀ (r : ℕ) (hr : r < 3200), r < 16 * j →
    b.view.read (Elt F) gb (ix1 (⟨r, by omega⟩ : Fin 25600)) = a.view.read (Elt F) ga (ix2 (0 : Fin 8) (⟨r, hr⟩ : Fin 3200))

theorem lanes_zero (a : Memref sig .scVector .vmem S8x3200 .f32) (b : Memref sig .scVector .vmem S25600 .f32)
    (ga : Buf (Elt F) (a.view.loc (thr d L))) (gb : Buf (Elt F) (b.view.loc (thr d L))) : Lanes d L a b ga gb 0 := by
  intro r hr h; omega

/-- The 1 × 16 window at column `c` of the staging array, read at lane `t`, is element `(0, c + t)`. -/
theorem idx_window {off : Fin 2 → ℕ} {c : ℕ} (h : off = ![0, c]) (p : ∀ a', off a' + S1x16.size a' ≤ S8x3200.size a')
    (t : Fin 16) (hr : c + t.val < 3200) :
    (Rect.unit (s := S8x3200) off S1x16.size p).toLoadRect.idx (ix2 (0 : Fin 1) t) = ix2 (0 : Fin 8) (⟨c + t.val, hr⟩ : Fin 3200) := by
  subst h
  funext a'; apply Fin.ext
  rw [LoadRect.idx_apply]
  match a' with
  | ⟨0, _⟩ => show 0 + 1 * 0 = 0; omega
  | ⟨1, _⟩ => show c + 1 * t.val = c + t.val; omega

/-- One trip of a lane-copy loop, the offsets given by their closed forms. -/
theorem lanes_step_core (a : Memref sig .scVector .vmem S8x3200 .f32) (b : Memref sig .scVector .vmem S25600 .f32)
    (ga : Buf (Elt F) (a.view.loc (thr d L))) (gb : Buf (Elt F) (b.view.loc (thr d L)))
    (t : ℕ) {off3 : Fin 2 → ℕ} {off4 : Fin 1 → ℕ} (h3 : off3 = ![0, 16 * t]) (h4 : off4 = ![16 * t])
    (p3 : ∀ a', off3 a' + S1x16.size a' ≤ S8x3200.size a') (p4 : ∀ a', off4 a' + S16.size a' ≤ S25600.size a')
    (h : Lanes d L a b ga gb t) :
    Lanes d L a b ga (b.view.writes (Elt F) gb [⟨Rect.unit (s := S25600) off4 S16.size p4,
      shapeCast S16 (a.view.readAt (Elt F) (Rect.unit (s := S8x3200) off3 S1x16.size p3).toLoadRect ga) shapeCasts_S1x16_S16⟩]) (t + 1) := by
  intro r hr hlt
  by_cases hlo : r < 16 * t
  · refine (View.read_writes_cons_unit_of_not_mem b.view gb p4 _ [] _ h4 (0 : Fin 1) (Or.inl ?_)).trans (h r hr hlo)
    show r < 16 * t
    exact hlo
  · have hx : r - 16 * t < 16 := by omega
    refine (View.read_writes_cons_unit_of_mem b.view gb p4 _ [] _ (ix1 (⟨r - 16 * t, hx⟩ : Fin 16)) h4 ?_).trans ?_
    · intro a'
      match a' with
      | ⟨0, _⟩ => show r = 16 * t + (r - 16 * t); omega
    · rw [shapeCast_1a_a_apply, View.readAt_apply, idx_window h3 p3 ⟨r - 16 * t, hx⟩ (by show 16 * t + (r - 16 * t) < 3200; omega)]
      congr 2
      apply Fin.ext
      show 16 * t + (r - 16 * t) = r
      omega

theorem lanes_step (a : Memref sig .scVector .vmem S8x3200 .f32) (b : Memref sig .scVector .vmem S25600 .f32)
    (ga : Buf (Elt F) (a.view.loc (thr d L))) (gb : Buf (Elt F) (b.view.loc (thr d L)))
    (j : Fin k7_t2_loop.trips) (p3 : ∀ a', (k7_off3 j) a' + S1x16.size a' ≤ S8x3200.size a')
    (p4 : ∀ a', (k7_off4 j) a' + S16.size a' ≤ S25600.size a') (h : Lanes d L a b ga gb j.val) :
    Lanes d L a b ga (b.view.writes (Elt F) gb [⟨Rect.unit (s := S25600) (k7_off4 j) S16.size p4,
      k7_pay1 (a.view.readAt (Elt F) (Rect.unit (s := S8x3200) (k7_off3 j) S1x16.size p3).toLoadRect ga)⟩]) (j.val + 1) :=
  lanes_step_core d L a b ga gb j.val (k7_off3_eq j) (k7_off4_eq j) p3 p4 h

theorem lanes_step' (a : Memref sig .scVector .vmem S8x3200 .f32) (b : Memref sig .scVector .vmem S25600 .f32)
    (ga : Buf (Elt F) (a.view.loc (thr d L))) (gb : Buf (Elt F) (b.view.loc (thr d L)))
    (j : Fin k7_t3_loop.trips) (p3 : ∀ a', (k7_off8 j) a' + S1x16.size a' ≤ S8x3200.size a')
    (p4 : ∀ a', (k7_off9 j) a' + S16.size a' ≤ S25600.size a') (h : Lanes d L a b ga gb j.val) :
    Lanes d L a b ga (b.view.writes (Elt F) gb [⟨Rect.unit (s := S25600) (k7_off9 j) S16.size p4,
      k7_pay2 (a.view.readAt (Elt F) (Rect.unit (s := S8x3200) (k7_off8 j) S1x16.size p3).toLoadRect ga)⟩]) (j.val + 1) :=
  lanes_step_core d L a b ga gb j.val (k7_off8_eq j) (k7_off9_eq j) p3 p4 h

/-- Position `y` of the write-out window of the flat staging array is its element `y 0`. -/
theorem stg_emb (y : S3200.Idx) (hy : (y 0).val < 25600) :
    (Rect.unit (s := S25600) ![0] S3200.size inb_S25600_S3200_0).emb y = ix1 (⟨(y 0).val, hy⟩ : Fin 25600) := by
  funext a'; apply Fin.ext
  match a' with
  | ⟨0, _⟩ => show 0 + 1 * (y 0).val = (y 0).val; omega

/-- Position `(0, t)` of row 0 of the staging array is its element `(0, t)`. -/
theorem row_emb (t : Fin 3200) : rowRect.emb (ix2 (0 : Fin 1) t) = ix2 (0 : Fin 8) t := by
  funext a'; apply Fin.ext
  match a' with
  | ⟨0, _⟩ => show 0 + 1 * 0 = 0; omega
  | ⟨1, _⟩ => show 0 + 1 * t.val = t.val; omega

/-- Position `(0, t)` of piece `n` of the argument row is element `(0, pos + t)` of the transposed argument;
    position `y` of piece `n` of the result is element `pos + y 0` of the result. -/
theorem in_emb (n : ℕ) (t : Fin 3200) (h : pos L n + t.val < 1600000) :
    (inM L n).view.emb (ix2 (0 : Fin 1) t) = ix2 (7 : Fin 22) (⟨pos L n + t.val, h⟩ : Fin 1600000) := by
  funext a'; apply Fin.ext
  match a' with
  | ⟨0, _⟩ => show 7 + 1 * 0 = 7; omega
  | ⟨1, _⟩ => show pos L n + 1 * t.val = pos L n + t.val; omega

theorem out_emb (n : ℕ) (y : S3200.Idx) (h : pos L n + (y 0).val < 1600000) :
    (outM L n).view.emb y = ix1 (⟨pos L n + (y 0).val, h⟩ : Fin 1600000) := by
  funext a'; apply Fin.ext
  match a' with
  | ⟨0, _⟩ => show pos L n + 1 * (y 0).val = pos L n + (y 0).val; omega

/-- Both lane-copy loops run 200 trips: 200 · 16 = 3200, the whole row. -/
theorem trips2 : k7_t2_loop.trips = 200 := by decide
theorem trips3 : k7_t3_loop.trips = 200 := by decide

/-- After all its trips a lane-copy loop has copied the whole row. -/
theorem lanes_all (a : Memref sig .scVector .vmem S8x3200 .f32) (b : Memref sig .scVector .vmem S25600 .f32)
    (ga : Buf (Elt F) (a.view.loc (thr d L))) (gb : Buf (Elt F) (b.view.loc (thr d L)))
    (h : Lanes d L a b ga gb k7_t2_loop.trips) : Lanes d L a b ga gb 200 := trips2 ▸ h
theorem lanes_all' (a : Memref sig .scVector .vmem S8x3200 .f32) (b : Memref sig .scVector .vmem S25600 .f32)
    (ga : Buf (Elt F) (a.view.loc (thr d L))) (gb : Buf (Elt F) (b.view.loc (thr d L)))
    (h : Lanes d L a b ga gb k7_t3_loop.trips) : Lanes d L a b ga gb 200 := trips3 ▸ h

/-- The write-out of a piece: the first 3200 elements of the flat staging array, which the 200 lane copies filled from
    row 0 of the staging array, which the fetch filled from piece `n` of row 7 of the transposed argument, land at
    piece `n` of the result, at the same positions of the row. -/
theorem out_written (a : Memref sig .scVector .vmem S8x3200 .f32) (b : Memref sig .scVector .vmem S25600 .f32) (n : ℕ)
    (ga : Buf (Elt F) (a.view.loc (thr d L))) (gb : Buf (Elt F) (b.view.loc (thr d L)))
    (f0 : Buf (Elt F) ((outM L n).view.loc (thr d L))) (w : S3200.Idx → Elt F .f32)
    (hw : ∀ y, w y = (stg b).view.read (Elt F) gb y) (hl : Lanes d L a b ga gb 200) (hr : InRow d L fx a ga n) (hv : valid L n) :
    ∀ i ∈ (outM L n).view.set, ((outM L n).view.writes (Elt F) f0 [⟨Rect.whole _, w⟩]) i = Cert.Spec.row 7 fx i := by
  intro i hi
  obtain ⟨y, -, rfl⟩ := Finset.mem_map.mp hi
  have hy : (y 0).val < 3200 := (y 0).isLt
  have hp : pos L n + (y 0).val < 1600000 := by unfold pos; omega
  have e1 : (outM L n).view.writes (Elt F) f0 [⟨Rect.whole _, w⟩] ((outM L n).view.emb y) = w y := by
    have h := View.read_writes_cons_emb (outM L n).view f0 (Rect.whole _) w [] y
    rw [Rect.emb_whole_apply] at h
    exact (cast_eq _ _).symm.trans ((View.read_apply _ _).symm.trans h)
  have e2 : (stg b).view.read (Elt F) gb y = b.view.read (Elt F) gb (ix1 (⟨(y 0).val, by omega⟩ : Fin 25600)) :=
    congrArg (b.view.read (Elt F) gb) (stg_emb y (by omega))
  have e3 : a.view.read (Elt F) ga (ix2 (0 : Fin 8) (⟨(y 0).val, hy⟩ : Fin 3200))
      = (inM L n).view.read (Elt F) fx (ix2 (0 : Fin 1) (⟨(y 0).val, hy⟩ : Fin 3200)) :=
    (congrArg (a.view.read (Elt F) ga) (row_emb ⟨(y 0).val, hy⟩).symm).trans (hr _)
  have e4 : (inM L n).view.read (Elt F) fx (ix2 (0 : Fin 1) (⟨(y 0).val, hy⟩ : Fin 3200))
      = fx (ix2 (7 : Fin 22) (⟨pos L n + (y 0).val, hp⟩ : Fin 1600000)) :=
    ((View.read_apply _ _).trans (cast_eq _ _)).trans (congrArg fx (in_emb L n ⟨(y 0).val, hy⟩ hp))
  have e5 : Cert.Spec.row 7 fx ((outM L n).view.emb y) = fx (ix2 (7 : Fin 22) (⟨pos L n + (y 0).val, hp⟩ : Fin 1600000)) :=
    (congrArg (Cert.Spec.row 7 fx) (out_emb L n y hp)).trans (Cert.Spec.row_apply 7 fx _)
  exact e1.trans ((hw y).trans (e2.trans ((hl _ hy (by omega)).trans (e3.trans (e4.trans e5.symm)))))

end Cert.Proof.TileBVal7

end
-- ==== Proof.TileB7.lean ====
/-
  One vector subcore's task of copy kernel 7 (counting from 0), run symbolically: the two fetch slots and two write-out slots
  between trips of the main loop (what each transfer in flight will hand back, and what the staging buffers hold), the
  invariant of the main loop and of the two lane-copy loops, and the task's run — from the tile's pieces of row 7 of
  the transposed argument and of the result to the same pieces with the result holding the row's elements.
-/
import proofs.«206869_g37898791420194_cont_8to1_b_558_20_alg».proof.Proof.TileB7Defs
import proofs.«206869_g37898791420194_cont_8to1_b_558_20_alg».proof.Proof.TileBVal7
noncomputable section

namespace Cert.Proof.TileB7

open Cert.Kernel Cert.Kernel.Gen Cert.Proof.TileBVal7
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 22) (Elt F) ℕ UU ℕ
local notation "xtW" => (Memref.whole Cert.Kernel.main_v0_scv : Memref Cert.Kernel.sig Kind.scVector Space.hbm Cert.Kernel.S22x1600000 EltTy.f32)
local notation "oW" => (Memref.whole Cert.Kernel.main_v8_scv : Memref Cert.Kernel.sig Kind.scVector Space.hbm Cert.Kernel.S1600000 EltTy.f32)
local notation "a4" => (Memref.whole Cert.Kernel.cc7_scratch0 : Memref Cert.Kernel.sig Kind.scVector Space.vmem Cert.Kernel.S8x3200 EltTy.f32)
local notation "a5" => (Memref.whole Cert.Kernel.cc7_scratch1 : Memref Cert.Kernel.sig Kind.scVector Space.vmem Cert.Kernel.S8x3200 EltTy.f32)
local notation "a6" => (Memref.whole Cert.Kernel.cc7_scratch2 : Memref Cert.Kernel.sig Kind.scVector Space.vmem Cert.Kernel.S25600 EltTy.f32)
local notation "a7" => (Memref.whole Cert.Kernel.cc7_scratch3 : Memref Cert.Kernel.sig Kind.scVector Space.vmem Cert.Kernel.S25600 EltTy.f32)

variable [FloatOps F]

section Tile

variable (d : Dev nD) (L : grid7.Coords)
variable (O : CellTallies nD τ sig (HIx 22)) (W : Waits sig (HIx 22))
variable (fx : Buf (Elt F) ((xtW).view.loc (thr d L)))

/-- Piece `n` of the result at its final contents. -/
abbrev oqPiece (n : ℕ) : sProp 𝕄 := (outM L n).view.loc (thr d L) ↦[(outM L n).view.set]{fullShare} (Cert.Spec.row 7 fx)
theorem oQ_pos {n : ℕ} (v : valid L n) : oQ d L fx n = oqPiece d L fx n := if_pos v
theorem oQ_neg {n : ℕ} (v : ¬ valid L n) : oQ d L fx n = iprop(emp) := if_neg v

/-- A fetch slot, remembering that the staging row it will hand back holds the piece. -/
def inSlotV (a : Memref sig .scVector .vmem S8x3200 .f32) (sm : DmaSem sig) (n : ℕ) : sProp 𝕄 :=
  if valid L n then
    iprop(∃ g, ⌜InRow d L fx a g n⌝ ∗ Transfers.Flight countersEmb (thr d L) (SemLoc.dma sm) (default : HIx 22) NN
      iprop((a.view.loc (thr d L) ↦{fullShare} g) ∗ xtPiece d L fx n))
  else iprop((∃ g, a.view.loc (thr d L) ↦{fullShare} g) ∗ semVal (thr d L, SemLoc.dma sm) 0)

/-- A write-out slot: the piece in flight will come back holding the row's elements. -/
def outSlotV (a : Memref sig .scVector .vmem S25600 .f32) (sm : DmaSem sig) (m : ℕ) : sProp 𝕄 :=
  if 2 ≤ m ∧ valid L (m - 2) then
    iprop(∃ g, Transfers.Flight countersEmb (thr d L) (SemLoc.dma sm) (default : HIx 22) NN
        iprop(oqPiece d L fx (m - 2) ∗ ((stg a).view.loc (thr d L) ↦[(stg a).view.set]{fullShare} g))
      ∗ (a.view.loc (thr d L) ↦[Finset.univ \ (stg a).view.set]{fullShare} g))
  else iprop((∃ g, a.view.loc (thr d L) ↦{fullShare} g) ∗ semVal (thr d L, SemLoc.dma sm) 0)

theorem inSlotV_pos {a : Memref sig .scVector .vmem S8x3200 .f32} {sm : DmaSem sig} {n : ℕ} (v : valid L n) :
    inSlotV d L fx a sm n = iprop(∃ g, ⌜InRow d L fx a g n⌝ ∗ Transfers.Flight countersEmb (thr d L) (SemLoc.dma sm) (default : HIx 22) NN
      iprop((a.view.loc (thr d L) ↦{fullShare} g) ∗ xtPiece d L fx n)) := by unfold inSlotV; rw [if_pos v]
theorem inSlotV_neg {a : Memref sig .scVector .vmem S8x3200 .f32} {sm : DmaSem sig} {n : ℕ} (v : ¬ valid L n) :
    inSlotV d L fx a sm n = iprop((∃ g, a.view.loc (thr d L) ↦{fullShare} g) ∗ semVal (thr d L, SemLoc.dma sm) 0) := by
  unfold inSlotV; rw [if_neg v]
theorem outSlotV_pos {a : Memref sig .scVector .vmem S25600 .f32} {sm : DmaSem sig} {m : ℕ} (h : 2 ≤ m ∧ valid L (m - 2)) :
    outSlotV d L fx a sm m = iprop(∃ g, Transfers.Flight countersEmb (thr d L) (SemLoc.dma sm) (default : HIx 22) NN
        iprop(oqPiece d L fx (m - 2) ∗ ((stg a).view.loc (thr d L) ↦[(stg a).view.set]{fullShare} g))
      ∗ (a.view.loc (thr d L) ↦[Finset.univ \ (stg a).view.set]{fullShare} g)) := by unfold outSlotV; rw [if_pos h]
theorem outSlotV_neg {a : Memref sig .scVector .vmem S25600 .f32} {sm : DmaSem sig} {m : ℕ} (h : ¬ (2 ≤ m ∧ valid L (m - 2))) :
    outSlotV d L fx a sm m = iprop((∃ g, a.view.loc (thr d L) ↦{fullShare} g) ∗ semVal (thr d L, SemLoc.dma sm) 0) := by
  unfold outSlotV; rw [if_neg h]

/-- A fetch just issued: the staging row will hold what the transfer reads, which is the piece. -/
theorem fl_inV {off : Fin 2 → ℕ} {n : ℕ} (h : off = ![7, pos L n]) (p : ∀ a, off a + S1x3200.size a ≤ S22x1600000.size a) (v : valid L n)
    (a : Memref sig .scVector .vmem S8x3200 .f32) (sm : DmaSem sig) :
    (iprop(∃ (gold : Buf (Elt F) (a.view.loc (thr d L))) (w : S1x3200.Idx → Elt F .f32),
        ⌜∀ y, w y = ((xtW).slice (Rect.unit (s := S22x1600000) off S1x3200.size p) (fun _ => rfl)).view.read (Elt F) fx y⌝
        ∗ Transfers.Flight countersEmb (thr d L) (SemLoc.dma sm) (default : HIx 22) NN
          iprop((a.view.loc (thr d L) ↦{fullShare} a.view.writes (Elt F) gold [⟨rowRect, w⟩])
            ∗ (((xtW).slice (Rect.unit (s := S22x1600000) off S1x3200.size p) (fun _ => rfl)).view.loc (thr d L)
                ↦[((xtW).slice (Rect.unit (s := S22x1600000) off S1x3200.size p) (fun _ => rfl)).view.set]{fullShare} fx))) : sProp 𝕄)
      ⊢ inSlotV d L fx a sm n := by
  subst h
  rw [inSlotV_pos d L fx v]
  iintro ⟨%gold, %w, %hw, H⟩
  iexists _
  isplitr
  · ipureintro; exact inRow_fetch d L fx a gold w n hw
  · iexact H

set_option maxHeartbeats 4000000 in
/-- A write-out just issued from a flat staging buffer whose first 3200 elements are the staging row, itself piece
    `n` of the argument row: the piece of the result will hold the row's elements. -/
theorem fl_outV {off : Fin 1 → ℕ} {n : ℕ} (h : off = ![pos L n]) (p : ∀ a, off a + S3200.size a ≤ S1600000.size a) (v : valid L n)
    (ar : Memref sig .scVector .vmem S8x3200 .f32) (a : Memref sig .scVector .vmem S25600 .f32) (sm : DmaSem sig)
    (f0 : Buf (Elt F) ((oW).view.loc (thr d L))) (ga : Buf (Elt F) (ar.view.loc (thr d L))) (gb : Buf (Elt F) (a.view.loc (thr d L)))
    (hl : Lanes d L ar a ga gb 200) (hr : InRow d L fx ar ga n) :
    (iprop(∃ (w : S3200.Idx → Elt F .f32),
        ⌜∀ y, w y = (stg a).view.read (Elt F) gb y⌝
        ∗ Transfers.Flight countersEmb (thr d L) (SemLoc.dma sm) (default : HIx 22) NN
          iprop((((oW).slice (Rect.unit (s := S1600000) off S3200.size p) (fun _ => rfl)).view.loc (thr d L)
                ↦[((oW).slice (Rect.unit (s := S1600000) off S3200.size p) (fun _ => rfl)).view.set]{fullShare}
                  (((oW).slice (Rect.unit (s := S1600000) off S3200.size p) (fun _ => rfl)).view.writes (Elt F) f0 [⟨Rect.whole _, w⟩]))
            ∗ ((stg a).view.loc (thr d L) ↦[(stg a).view.set]{fullShare} gb))
        ∗ (a.view.loc (thr d L) ↦[Finset.univ \ (stg a).view.set]{fullShare} gb)) : sProp 𝕄)
      ⊢ outSlotV d L fx a sm (n + 2) := by
  subst h
  rw [outSlotV_pos d L fx (m := n + 2) ⟨by omega, by simpa using v⟩]
  iintro ⟨%w, %hw, H, R⟩
  have hD : (iprop(((outM L n).view.loc (thr d L) ↦[(outM L n).view.set]{fullShare} ((outM L n).view.writes (Elt F) f0 [⟨Rect.whole _, w⟩]))
          ∗ ((stg a).view.loc (thr d L) ↦[(stg a).view.set]{fullShare} gb)) : sProp 𝕄)
      ⊢ iprop(oqPiece d L fx (n + 2 - 2) ∗ ((stg a).view.loc (thr d L) ↦[(stg a).view.set]{fullShare} gb)) := by
    rw [Nat.add_sub_cancel]
    have e : (((outM L n).view.loc (thr d L) ↦[(outM L n).view.set]{fullShare} ((outM L n).view.writes (Elt F) f0 [⟨Rect.whole _, w⟩])) : sProp 𝕄)
        = oqPiece d L fx n := pointsTo_congr (out_written d L fx ar a n ga gb f0 w hw hl hr v)
    iintro ⟨H1, H2⟩
    isplitl [H1]
    · iapply (Entails.of_eq e); iexact H1
    · iexact H2
  iexists gb
  isplitl [H]
  · iapply (Transfers.Flight_mono countersEmb (thr d L) hD); iexact H
  · iexact R

/-- The result pieces outside the slots before trip `t`: those already written hold the row, the others some contents. -/
def oMix (t n : ℕ) : sProp 𝕄 := if n + 2 < 2 * t then oQ d L fx n else oP (F := F) d L n
theorem oMix_lt {t n : ℕ} (h : n + 2 < 2 * t) : oMix d L fx t n = oQ d L fx n := if_pos h
theorem oMix_ge {t n : ℕ} (h : ¬ n + 2 < 2 * t) : oMix d L fx t n = oP (F := F) d L n := if_neg h
theorem oMix_core (k : ℕ) : bigSep (oCore k) (oMix d L fx k) = bigSep (oCore k) (oMix d L fx (k + 1)) :=
  bigSep_congr fun n hn => by
    have hn' : n + 2 ≠ 2 * k ∧ n + 2 ≠ 2 * k + 1 ∧ n ≠ 2 * k ∧ n ≠ 2 * k + 1 := by
      simp only [oCore, Finset.mem_filter, Finset.mem_range] at hn; exact hn.2
    by_cases h : n + 2 < 2 * k
    · rw [oMix_lt d L fx h, oMix_lt d L fx (by omega)]
    · rw [oMix_ge d L fx h, oMix_ge d L fx (by omega)]
theorem oMix_zero : bigSep (oSet 0) (oMix d L fx 0) = bigSep (Finset.range 18) (oP (F := F) d L) := by
  rw [oSet_zero]; exact bigSep_congr fun n _ => oMix_ge d L fx (by omega)
theorem oMix_end : bigSep (oSet 8) (oMix d L fx 8) = bigSep (oSet 8) (oQ d L fx) :=
  bigSep_congr fun n hn => by
    have hn' : n < 18 ∧ n + 2 ≠ 16 ∧ n + 2 ≠ 17 := by simpa only [oSet, Finset.mem_filter, Finset.mem_range] using hn
    by_cases h : n + 2 < 2 * 8
    · exact oMix_lt d L fx h
    · rw [oMix_ge d L fx h, oP_neg (F := F) d L (by unfold valid; omega), oQ_neg d L fx (by unfold valid; omega)]

/-- The lane-copy loops: before trip `j` the first 16·j elements of the flat staging buffer are the staging row's. -/
def laneV0 (g4 : Buf (Elt F) ((a4).view.loc (thr d L))) (j : ℕ) (_ : PUnit) : sProp 𝕄 :=
  iprop(((a4).view.loc (thr d L) ↦{fullShare} g4) ∗ (∃ g, ((a6).view.loc (thr d L) ↦{fullShare} g) ∗ ⌜Lanes d L a4 a6 g4 g j⌝))
def laneV1 (g5 : Buf (Elt F) ((a5).view.loc (thr d L))) (j : ℕ) (_ : PUnit) : sProp 𝕄 :=
  iprop(((a5).view.loc (thr d L) ↦{fullShare} g5) ∗ (∃ g, ((a7).view.loc (thr d L) ↦{fullShare} g) ∗ ⌜Lanes d L a5 a7 g5 g j⌝))

def invV (t : ℕ) (_ : PUnit) : sProp 𝕄 :=
  iprop(Transfers.MayWaits (thr d L) (none : HIx 22) O
    ∗ (∃ W', ⌜∀ p ∈ W', p ∈ W ∨ p.2 = none⌝ ∗ owes (thr d L) O W')
    ∗ bigSep (xSet t) (xP d L fx) ∗ bigSep (oSet t) (oMix d L fx t)
    ∗ inSlotV d L fx a4 cc7_scratch4.sem (2 * t) ∗ outSlotV d L fx a6 cc7_scratch6.sem (2 * t)
    ∗ inSlotV d L fx a5 cc7_scratch5.sem (2 * t + 1) ∗ outSlotV d L fx a7 cc7_scratch7.sem (2 * t + 1))

/-- After the last trip nothing of the argument row is in a slot: the tile holds all its pieces. -/
theorem xRange_end : bigSep (xSet 8) (xP d L fx) ⊢ bigSep (Finset.range 18) (xP d L fx) := by
  rw [two_out (s := Finset.range 18) (a := 16) (b := 17) (by decide) (by decide) (by decide),
    show ((Finset.range 18).erase 16).erase 17 = xSet 8 by decide]
  iintro H
  isplitr; · iapply (Entails.of_eq (xP_neg d L fx (n := 16) (by unfold valid; omega)).symm); iempintro
  isplitr; · iapply (Entails.of_eq (xP_neg d L fx (n := 17) (by unfold valid; omega)).symm); iempintro
  iexact H
omit [FloatOps F] in
theorem oRange_end (Φ : ℕ → sProp 𝕄) : bigSep (Finset.range 18) Φ = iprop(Φ 14 ∗ Φ 15 ∗ bigSep (oSet 8) Φ) := by
  rw [two_out (s := Finset.range 18) (a := 14) (b := 15) (by decide) (by decide) (by decide),
    show ((Finset.range 18).erase 14).erase 15 = oSet 8 by decide]

/-- What the run starts from and ends with, beside an untouched rest `R`. -/
def runPre (R : sProp 𝕄) : sProp 𝕄 :=
    iprop(Transfers.MayWaits (thr d L) (none : HIx 22) O ∗ owes (thr d L) O W
        ∗ bigSep (Finset.range 18) (xP d L fx) ∗ bigSep (Finset.range 18) (oP (F := F) d L)
        ∗ (∃ g, (a4).view.loc (thr d L) ↦{fullShare} g) ∗ (∃ g, (a5).view.loc (thr d L) ↦{fullShare} g)
        ∗ (∃ g, (a6).view.loc (thr d L) ↦{fullShare} g) ∗ (∃ g, (a7).view.loc (thr d L) ↦{fullShare} g)
        ∗ semVal (thr d L, SemLoc.dma cc7_scratch4.sem) 0 ∗ semVal (thr d L, SemLoc.dma cc7_scratch5.sem) 0
        ∗ semVal (thr d L, SemLoc.dma cc7_scratch6.sem) 0 ∗ semVal (thr d L, SemLoc.dma cc7_scratch7.sem) 0 ∗ R)
def runPost (R : sProp 𝕄) : sProp 𝕄 :=
    iprop(bigSep (Finset.range 18) (xP d L fx) ∗ bigSep (Finset.range 18) (oQ d L fx)
            ∗ (∃ g, (a4).view.loc (thr d L) ↦{fullShare} g) ∗ (∃ g, (a5).view.loc (thr d L) ↦{fullShare} g)
            ∗ (∃ g, (a6).view.loc (thr d L) ↦{fullShare} g) ∗ (∃ g, (a7).view.loc (thr d L) ↦{fullShare} g)
            ∗ semVal (thr d L, SemLoc.dma cc7_scratch4.sem) 0 ∗ semVal (thr d L, SemLoc.dma cc7_scratch5.sem) 0
            ∗ semVal (thr d L, SemLoc.dma cc7_scratch6.sem) 0 ∗ semVal (thr d L, SemLoc.dma cc7_scratch7.sem) 0
            ∗ (∃ W', ⌜∀ p ∈ W', p ∈ W ∨ p.2 = none⌝ ∗ owes (thr d L) O W') ∗ R)

set_option maxHeartbeats 16000000 in
/-- The task's run: from its pieces of the argument row and of the result, the four staging buffers and the four
    semaphores at zero, to the same with every piece of the result holding the row's elements. -/
theorem tile_run (R : sProp 𝕄) :
    runPre d L O W fx R
      ⊢ wp frame (wpE (defs₀ (F := F)) 𝒱₀ (thr d L) none) Set.univ
          (cc7_sc_group L xtW (Memref.isWhole_whole _) oW (Memref.isWhole_whole _) a4 (Memref.isWhole_whole _) a5 (Memref.isWhole_whole _)
            a6 (Memref.isWhole_whole _) a7 (Memref.isWhole_whole _) cc7_scratch4 cc7_scratch5 cc7_scratch6 cc7_scratch7)
          fun _ => runPost d L O W fx R := by
  unfold runPre runPost
  have v0 : valid L 0 := Or.inl (by omega)
  have v1 : valid L 1 := Or.inl (by omega)
  have k7_h7 : k7_cond7 L = 1#1 := cond7_iff L
  iintro ⟨#Hmw, HO, HX, HOut, ⟨%g4, H4⟩, ⟨%g5, H5⟩, ⟨%g6, H6⟩, ⟨%g7, H7⟩, Hs8, Hs9, Hs10, Hs11, HR⟩
  ihave HX := (Entails.of_eq (xRange_split d L fx v0 v1)) $$ HX
  icases HX with ⟨X0, X1, HX⟩
  ihave X0 := (Entails.of_eq (in_congr d L (off_in0 L v0).symm (in_inb L _) (k7_off1_inb L 0) fx)) $$ X0
  ihave X1 := (Entails.of_eq (in_congr d L (off_in1 L v1).symm (in_inb L _) (k7_off1_inb L 1) fx)) $$ X1
  sl_unfold [cc7_sc_group]
  sl_exec
  ihave S8 := (fl_inV d L fx (off_in0 L v0) (k7_off1_inb L 0) v0 a4 cc7_scratch4.sem) $$ [Hs8]
  · iexists _, _
    isplitr
    rotate_left
    · iexact Hs8
    ipureintro; intro y; rfl
  ihave S9 := (fl_inV d L fx (off_in1 L v1) (k7_off1_inb L 1) v1 a5 cc7_scratch5.sem) $$ [Hs9]
  · iexists _, _
    isplitr
    rotate_left
    · iexact Hs9
    ipureintro; intro y; rfl
  sl_for (invV d L O W fx) $$ [HO HX HOut S8 S9 H6 H7 Hs10 Hs11]
  case region =>
    intro (k : Fin k7_t1_loop.trips) acc
    have hk : k.val < 8 := Nat.lt_of_lt_of_eq k.isLt trips1
    unfold invV
    iintro ⟨#Hmw, ⟨%W', %hW', HO⟩, HX, HOut, S8, S10, S9, S11⟩
    by_cases hk1 : 1 ≤ k.val
    · by_cases v3 : valid L (2 * k.val + 3)
      · -- the generic trip: both drains, both pieces worked, both next fetches issued
        have hk6 : k.val ≤ 6 := by unfold valid at v3; omega
        have k7_h1 : k7_cond1 k = 1#1 := (cond1_iff k).mpr (by omega)
        have k7_h2 : k7_cond2 L k = 1#1 := cond2_iff L k
        have k7_h3 : k7_cond3 L k = 1#1 := (cond3_iff L k).mpr (by omega)
        have k7_h4 : k7_cond4 k = 1#1 := (cond4_iff k).mpr (by omega)
        have k7_h5 : k7_cond5 L k = 1#1 := (cond5_iff L k).mpr (by first | (unfold valid big at *; omega) | (unfold big at *; omega) | omega)
        have k7_h6 : k7_cond6 L k = 1#1 := (cond6_iff L k).mpr (by first | (unfold valid big at *; omega) | (unfold big at *; omega) | omega)
        have v0 : valid L (2 * k.val) := by unfold valid big at *; omega
        have v1 : valid L (2 * k.val + 1) := by unfold valid big at *; omega
        have v2 : valid L (2 * k.val + 2) := by unfold valid big at *; omega
        have v3' : valid L (2 * k.val + 3) := by unfold valid big at *; omega
        have hm0 : 2 ≤ 2 * k.val ∧ valid L (2 * k.val - 2) := ⟨by omega, by unfold valid big at *; omega⟩
        have hm1 : 2 ≤ 2 * k.val + 1 ∧ valid L (2 * k.val + 1 - 2) := ⟨by omega, by unfold valid big at *; omega⟩
        ihave S8 := (Entails.of_eq (inSlotV_pos d L fx v0)) $$ S8
        icases S8 with ⟨%g4, %hin4, F8⟩
        ihave S9 := (Entails.of_eq (inSlotV_pos d L fx v1)) $$ S9
        icases S9 with ⟨%g5, %hin5, F9⟩
        ihave S10 := (Entails.of_eq (outSlotV_pos d L fx hm0)) $$ S10
        icases S10 with ⟨%g6, F10, R6⟩
        ihave S11 := (Entails.of_eq (outSlotV_pos d L fx hm1)) $$ S11
        icases S11 with ⟨%g7, F11, R7⟩
        ihave HX := (Entails.of_eq (xSet_out (xP d L fx) k.val hk)) $$ HX
        icases HX with ⟨X2, X3, HX⟩
        ihave X2 := (Entails.of_eq (xP_pos d L fx v2)) $$ X2
        ihave X2 := (Entails.of_eq (in_congr d L (off_6 L k v2).symm (in_inb L _) (k7_off6_inb L k k7_h3) fx)) $$ X2
        ihave X3 := (Entails.of_eq (xP_pos d L fx v3')) $$ X3
        ihave X3 := (Entails.of_eq (in_congr d L (off_11 L k v3').symm (in_inb L _) (k7_off11_inb L k k7_h6) fx)) $$ X3
        ihave HOut := (Entails.of_eq (oSet_out (oMix d L fx k.val) k.val hk)) $$ HOut
        icases HOut with ⟨Y0, Y1, HOut⟩
        ihave Y0 := (Entails.of_eq ((oMix_ge d L fx (t := k.val) (n := 2 * k.val) (by omega)).trans (oP_pos (F := F) d L v0))) $$ Y0
        icases Y0 with ⟨%f0, Y0⟩
        ihave Y0 := (Entails.of_eq (out_congr d L (off_5 L k v0).symm (out_inb L _) (k7_off5_inb L k k7_h2) f0)) $$ Y0
        ihave Y1 := (Entails.of_eq ((oMix_ge d L fx (t := k.val) (n := 2 * k.val + 1) (by omega)).trans (oP_pos (F := F) d L v1))) $$ Y1
        icases Y1 with ⟨%f1, Y1⟩
        ihave Y1 := (Entails.of_eq (out_congr d L (off_10 L k v1).symm (out_inb L _) (k7_off10_inb L k k7_h5) f1)) $$ Y1
        sl_exec
        sl_for (laneV0 d L g4) $$ [F8_dst R6]
        case region =>
          intro (j : Fin k7_t2_loop.trips) _
          unfold laneV0
          iintro ⟨HA, %g, HB, %hl⟩
          sl_exec
          sl_step
          isplitl [HA]; · iexact HA
          iexists _; isplitl [HB]; · iexact HB
          ipureintro; exact lanes_step d L a4 a6 g4 g j _ _ hl
        · unfold laneV0
          isplitl [F8_dst]; · iexact F8_dst
          iexists _; isplitl [R6]; · iexact R6
          ipureintro; exact lanes_zero d L a4 a6 g4 _
        iintro %_ HI
        unfold laneV0
        icases HI with ⟨H4, %g6', H6, %hl6⟩
        have hl6 : Lanes d L a4 a6 g4 g6' 200 := Eq.mp (congrArg (Lanes d L a4 a6 g4 g6') trips2) hl6
        sl_exec
        sl_for (laneV1 d L g5) $$ [F9_dst R7]
        case region =>
          intro (j : Fin k7_t3_loop.trips) _
          unfold laneV1
          iintro ⟨HA, %g, HB, %hl⟩
          sl_exec
          sl_step
          isplitl [HA]; · iexact HA
          iexists _; isplitl [HB]; · iexact HB
          ipureintro; exact lanes_step' d L a5 a7 g5 g j _ _ hl
        · unfold laneV1
          isplitl [F9_dst]; · iexact F9_dst
          iexists _; isplitl [R7]; · iexact R7
          ipureintro; exact lanes_zero d L a5 a7 g5 _
        iintro %_ HI
        unfold laneV1
        icases HI with ⟨H5, %g7', H7, %hl7⟩
        have hl7 : Lanes d L a5 a7 g5 g7' 200 := Eq.mp (congrArg (Lanes d L a5 a7 g5 g7') trips3) hl7
        sl_exec
        sl_step
        isplitr; · iexact Hmw
        isplitl [HO]
        · iexists _; isplitr
          rotate_left
          · iexact HO
          ipureintro; intro p hp
          rcases Finset.mem_insert.mp hp with rfl | hp
          · exact .inr rfl
          rcases Finset.mem_insert.mp hp with rfl | hp
          · exact .inr rfl
          rcases Finset.mem_insert.mp hp with rfl | hp
          · exact .inr rfl
          rcases Finset.mem_insert.mp hp with rfl | hp
          · exact .inr rfl
          exact hW' p hp
        isplitl [HX F8_src F9_src]
        · iapply (Entails.of_eq (xSet_in (xP d L fx) k.val hk).symm)
          isplitl [F8_src]; · iapply (Entails.of_eq (xP_pos d L fx v0).symm); iexact F8_src
          isplitl [F9_src]; · iapply (Entails.of_eq (xP_pos d L fx v1).symm); iexact F9_src
          iexact HX
        isplitl [HOut F10_dst F11_dst]
        · iapply (Entails.of_eq (oSet_in (oMix d L fx (k.val + 1)) k.val hk (by omega)).symm)
          isplitl [F10_dst]; · iapply (Entails.of_eq ((oMix_lt d L fx (t := k.val + 1) (n := 2 * k.val - 2) (by omega)).trans (oQ_pos d L fx hm0.2)).symm); iexact F10_dst
          isplitl [F11_dst]
          · iapply (Entails.of_eq ((oMix_lt d L fx (t := k.val + 1) (n := 2 * k.val - 1) (by omega)).trans (oQ_pos d L fx (n := 2 * k.val - 1) (by have := hm1.2; rwa [show 2 * k.val + 1 - 2 = 2 * k.val - 1 by omega] at this))).symm)
            iapply (Entails.of_eq (congrArg (oqPiece d L fx) (show 2 * k.val + 1 - 2 = 2 * k.val - 1 by omega))); iexact F11_dst
          iapply (Entails.of_eq (oMix_core d L fx k.val)); iexact HOut
        isplitl [F8]
        · iapply (Entails.of_eq (congrArg (inSlotV d L fx a4 cc7_scratch4.sem) (show 2 * k.val + 2 = 2 * (k.val + 1) by ring)))
          iapply (fl_inV d L fx (off_6 L k v2) (k7_off6_inb L k k7_h3) v2 a4 cc7_scratch4.sem); iexists _, _
          isplitr
          rotate_left
          · iexact F8
          ipureintro; intro y; rfl
        isplitl [F10 H6]
        · iapply (Entails.of_eq (congrArg (outSlotV d L fx a6 cc7_scratch6.sem) (show 2 * k.val + 2 = 2 * (k.val + 1) by ring)))
          iapply (fl_outV d L fx (off_5 L k v0) (k7_off5_inb L k k7_h2) v0 a4 a6 cc7_scratch6.sem f0 g4 g6' hl6 hin4); iexists _
          isplitr
          rotate_left
          · isplitl [F10]; · iexact F10
            iexact H6
          ipureintro; intro y; rfl
        isplitl [F9]
        · iapply (Entails.of_eq (congrArg (inSlotV d L fx a5 cc7_scratch5.sem) (show 2 * k.val + 3 = 2 * (k.val + 1) + 1 by ring)))
          iapply (fl_inV d L fx (off_11 L k v3') (k7_off11_inb L k k7_h6) v3' a5 cc7_scratch5.sem); iexists _, _
          isplitr
          rotate_left
          · iexact F9
          ipureintro; intro y; rfl
        · iapply (Entails.of_eq (congrArg (outSlotV d L fx a7 cc7_scratch7.sem) (show 2 * k.val + 1 + 2 = 2 * (k.val + 1) + 1 by ring)))
          iapply (fl_outV d L fx (off_10 L k v1) (k7_off10_inb L k k7_h5) v1 a5 a7 cc7_scratch7.sem f1 g5 g7' hl7 hin5); iexists _
          isplitr
          rotate_left
          · isplitl [F11]; · iexact F11
            iexact H7
          ipureintro; intro y; rfl
      · by_cases h6 : k.val = 6
        · have hb : ¬ big L := fun hb => v3 (Or.inr ⟨by omega, hb⟩)
          -- trip 6 of a tile with fifteen pieces: no sixteenth piece to fetch
          have k7_h1 : k7_cond1 k = 1#1 := (cond1_iff k).mpr (by omega)
          have k7_h2 : k7_cond2 L k = 1#1 := cond2_iff L k
          have k7_h3 : k7_cond3 L k = 1#1 := (cond3_iff L k).mpr (by omega)
          have k7_h4 : k7_cond4 k = 1#1 := (cond4_iff k).mpr (by omega)
          have k7_h5 : k7_cond5 L k = 1#1 := (cond5_iff L k).mpr (by first | (unfold valid big at *; omega) | (unfold big at *; omega) | omega)
          have k7_h6 : ¬ k7_cond6 L k = 1#1 := fun h => absurd ((cond6_iff L k).mp h) (by first | (unfold valid big at *; omega) | (unfold big at *; omega) | omega)
          have v0 : valid L (2 * k.val) := by unfold valid big at *; omega
          have v1 : valid L (2 * k.val + 1) := by unfold valid big at *; omega
          have v2 : valid L (2 * k.val + 2) := by unfold valid big at *; omega
          have v3' : ¬ valid L (2 * k.val + 3) := by unfold valid big at *; omega
          have hm0 : 2 ≤ 2 * k.val ∧ valid L (2 * k.val - 2) := ⟨by omega, by unfold valid big at *; omega⟩
          have hm1 : 2 ≤ 2 * k.val + 1 ∧ valid L (2 * k.val + 1 - 2) := ⟨by omega, by unfold valid big at *; omega⟩
          ihave S8 := (Entails.of_eq (inSlotV_pos d L fx v0)) $$ S8
          icases S8 with ⟨%g4, %hin4, F8⟩
          ihave S9 := (Entails.of_eq (inSlotV_pos d L fx v1)) $$ S9
          icases S9 with ⟨%g5, %hin5, F9⟩
          ihave S10 := (Entails.of_eq (outSlotV_pos d L fx hm0)) $$ S10
          icases S10 with ⟨%g6, F10, R6⟩
          ihave S11 := (Entails.of_eq (outSlotV_pos d L fx hm1)) $$ S11
          icases S11 with ⟨%g7, F11, R7⟩
          ihave HX := (Entails.of_eq (xSet_out (xP d L fx) k.val hk)) $$ HX
          icases HX with ⟨X2, -, HX⟩
          ihave X2 := (Entails.of_eq (xP_pos d L fx v2)) $$ X2
          ihave X2 := (Entails.of_eq (in_congr d L (off_6 L k v2).symm (in_inb L _) (k7_off6_inb L k k7_h3) fx)) $$ X2
          ihave HOut := (Entails.of_eq (oSet_out (oMix d L fx k.val) k.val hk)) $$ HOut
          icases HOut with ⟨Y0, Y1, HOut⟩
          ihave Y0 := (Entails.of_eq ((oMix_ge d L fx (t := k.val) (n := 2 * k.val) (by omega)).trans (oP_pos (F := F) d L v0))) $$ Y0
          icases Y0 with ⟨%f0, Y0⟩
          ihave Y0 := (Entails.of_eq (out_congr d L (off_5 L k v0).symm (out_inb L _) (k7_off5_inb L k k7_h2) f0)) $$ Y0
          ihave Y1 := (Entails.of_eq ((oMix_ge d L fx (t := k.val) (n := 2 * k.val + 1) (by omega)).trans (oP_pos (F := F) d L v1))) $$ Y1
          icases Y1 with ⟨%f1, Y1⟩
          ihave Y1 := (Entails.of_eq (out_congr d L (off_10 L k v1).symm (out_inb L _) (k7_off10_inb L k k7_h5) f1)) $$ Y1
          sl_exec
          sl_for (laneV0 d L g4) $$ [F8_dst R6]
          case region =>
            intro (j : Fin k7_t2_loop.trips) _
            unfold laneV0
            iintro ⟨HA, %g, HB, %hl⟩
            sl_exec
            sl_step
            isplitl [HA]; · iexact HA
            iexists _; isplitl [HB]; · iexact HB
            ipureintro; exact lanes_step d L a4 a6 g4 g j _ _ hl
          · unfold laneV0
            isplitl [F8_dst]; · iexact F8_dst
            iexists _; isplitl [R6]; · iexact R6
            ipureintro; exact lanes_zero d L a4 a6 g4 _
          iintro %_ HI
          unfold laneV0
          icases HI with ⟨H4, %g6', H6, %hl6⟩
          have hl6 : Lanes d L a4 a6 g4 g6' 200 := Eq.mp (congrArg (Lanes d L a4 a6 g4 g6') trips2) hl6
          sl_exec
          sl_for (laneV1 d L g5) $$ [F9_dst R7]
          case region =>
            intro (j : Fin k7_t3_loop.trips) _
            unfold laneV1
            iintro ⟨HA, %g, HB, %hl⟩
            sl_exec
            sl_step
            isplitl [HA]; · iexact HA
            iexists _; isplitl [HB]; · iexact HB
            ipureintro; exact lanes_step' d L a5 a7 g5 g j _ _ hl
          · unfold laneV1
            isplitl [F9_dst]; · iexact F9_dst
            iexists _; isplitl [R7]; · iexact R7
            ipureintro; exact lanes_zero d L a5 a7 g5 _
          iintro %_ HI
          unfold laneV1
          icases HI with ⟨H5, %g7', H7, %hl7⟩
          have hl7 : Lanes d L a5 a7 g5 g7' 200 := Eq.mp (congrArg (Lanes d L a5 a7 g5 g7') trips3) hl7
          sl_exec
          sl_step
          isplitr; · iexact Hmw
          isplitl [HO]
          · iexists _; isplitr
            rotate_left
            · iexact HO
            ipureintro; intro p hp
            rcases Finset.mem_insert.mp hp with rfl | hp
            · exact .inr rfl
            rcases Finset.mem_insert.mp hp with rfl | hp
            · exact .inr rfl
            rcases Finset.mem_insert.mp hp with rfl | hp
            · exact .inr rfl
            rcases Finset.mem_insert.mp hp with rfl | hp
            · exact .inr rfl
            exact hW' p hp
          isplitl [HX F8_src F9_src]
          · iapply (Entails.of_eq (xSet_in (xP d L fx) k.val hk).symm)
            isplitl [F8_src]; · iapply (Entails.of_eq (xP_pos d L fx v0).symm); iexact F8_src
            isplitl [F9_src]; · iapply (Entails.of_eq (xP_pos d L fx v1).symm); iexact F9_src
            iexact HX
          isplitl [HOut F10_dst F11_dst]
          · iapply (Entails.of_eq (oSet_in (oMix d L fx (k.val + 1)) k.val hk (by omega)).symm)
            isplitl [F10_dst]; · iapply (Entails.of_eq ((oMix_lt d L fx (t := k.val + 1) (n := 2 * k.val - 2) (by omega)).trans (oQ_pos d L fx hm0.2)).symm); iexact F10_dst
            isplitl [F11_dst]
            · iapply (Entails.of_eq ((oMix_lt d L fx (t := k.val + 1) (n := 2 * k.val - 1) (by omega)).trans (oQ_pos d L fx (n := 2 * k.val - 1) (by have := hm1.2; rwa [show 2 * k.val + 1 - 2 = 2 * k.val - 1 by omega] at this))).symm)
              iapply (Entails.of_eq (congrArg (oqPiece d L fx) (show 2 * k.val + 1 - 2 = 2 * k.val - 1 by omega))); iexact F11_dst
            iapply (Entails.of_eq (oMix_core d L fx k.val)); iexact HOut
          isplitl [F8]
          · iapply (Entails.of_eq (congrArg (inSlotV d L fx a4 cc7_scratch4.sem) (show 2 * k.val + 2 = 2 * (k.val + 1) by ring)))
            iapply (fl_inV d L fx (off_6 L k v2) (k7_off6_inb L k k7_h3) v2 a4 cc7_scratch4.sem); iexists _, _
            isplitr
            rotate_left
            · iexact F8
            ipureintro; intro y; rfl
          isplitl [F10 H6]
          · iapply (Entails.of_eq (congrArg (outSlotV d L fx a6 cc7_scratch6.sem) (show 2 * k.val + 2 = 2 * (k.val + 1) by ring)))
            iapply (fl_outV d L fx (off_5 L k v0) (k7_off5_inb L k k7_h2) v0 a4 a6 cc7_scratch6.sem f0 g4 g6' hl6 hin4); iexists _
            isplitr
            rotate_left
            · isplitl [F10]; · iexact F10
              iexact H6
            ipureintro; intro y; rfl
          isplitl [H5 F9]
          · iapply (Entails.of_eq (congrArg (inSlotV d L fx a5 cc7_scratch5.sem) (show 2 * k.val + 3 = 2 * (k.val + 1) + 1 by ring)))
            iapply (Entails.of_eq (inSlotV_neg d L fx v3').symm)
            isplitl [H5]; · iexists _; iexact H5
            iexact F9
          · iapply (Entails.of_eq (congrArg (outSlotV d L fx a7 cc7_scratch7.sem) (show 2 * k.val + 1 + 2 = 2 * (k.val + 1) + 1 by ring)))
            iapply (fl_outV d L fx (off_10 L k v1) (k7_off10_inb L k k7_h5) v1 a5 a7 cc7_scratch7.sem f1 g5 g7' hl7 hin5); iexists _
            isplitr
            rotate_left
            · isplitl [F11]; · iexact F11
              iexact H7
            ipureintro; intro y; rfl
        · have h7 : k.val = 7 := by unfold valid at v3; omega
          by_cases hb : big L
          · -- the last trip of a tile with sixteen pieces: nothing more to fetch
            have k7_h1 : k7_cond1 k = 1#1 := (cond1_iff k).mpr (by omega)
            have k7_h2 : k7_cond2 L k = 1#1 := cond2_iff L k
            have k7_h3 : ¬ k7_cond3 L k = 1#1 := fun h => absurd ((cond3_iff L k).mp h) (by omega)
            have k7_h4 : k7_cond4 k = 1#1 := (cond4_iff k).mpr (by omega)
            have k7_h5 : k7_cond5 L k = 1#1 := (cond5_iff L k).mpr (by first | (unfold valid big at *; omega) | (unfold big at *; omega) | omega)
            have k7_h6 : ¬ k7_cond6 L k = 1#1 := fun h => absurd ((cond6_iff L k).mp h) (by first | (unfold valid big at *; omega) | (unfold big at *; omega) | omega)
            have v0 : valid L (2 * k.val) := by unfold valid big at *; omega
            have v1 : valid L (2 * k.val + 1) := by unfold valid big at *; omega
            have v2 : ¬ valid L (2 * k.val + 2) := by unfold valid big at *; omega
            have v3' : ¬ valid L (2 * k.val + 3) := by unfold valid big at *; omega
            have hm0 : 2 ≤ 2 * k.val ∧ valid L (2 * k.val - 2) := ⟨by omega, by unfold valid big at *; omega⟩
            have hm1 : 2 ≤ 2 * k.val + 1 ∧ valid L (2 * k.val + 1 - 2) := ⟨by omega, by unfold valid big at *; omega⟩
            ihave S8 := (Entails.of_eq (inSlotV_pos d L fx v0)) $$ S8
            icases S8 with ⟨%g4, %hin4, F8⟩
            ihave S9 := (Entails.of_eq (inSlotV_pos d L fx v1)) $$ S9
            icases S9 with ⟨%g5, %hin5, F9⟩
            ihave S10 := (Entails.of_eq (outSlotV_pos d L fx hm0)) $$ S10
            icases S10 with ⟨%g6, F10, R6⟩
            ihave S11 := (Entails.of_eq (outSlotV_pos d L fx hm1)) $$ S11
            icases S11 with ⟨%g7, F11, R7⟩
            ihave HX := (Entails.of_eq (xSet_out (xP d L fx) k.val hk)) $$ HX
            icases HX with ⟨-, -, HX⟩
            ihave HOut := (Entails.of_eq (oSet_out (oMix d L fx k.val) k.val hk)) $$ HOut
            icases HOut with ⟨Y0, Y1, HOut⟩
            ihave Y0 := (Entails.of_eq ((oMix_ge d L fx (t := k.val) (n := 2 * k.val) (by omega)).trans (oP_pos (F := F) d L v0))) $$ Y0
            icases Y0 with ⟨%f0, Y0⟩
            ihave Y0 := (Entails.of_eq (out_congr d L (off_5 L k v0).symm (out_inb L _) (k7_off5_inb L k k7_h2) f0)) $$ Y0
            ihave Y1 := (Entails.of_eq ((oMix_ge d L fx (t := k.val) (n := 2 * k.val + 1) (by omega)).trans (oP_pos (F := F) d L v1))) $$ Y1
            icases Y1 with ⟨%f1, Y1⟩
            ihave Y1 := (Entails.of_eq (out_congr d L (off_10 L k v1).symm (out_inb L _) (k7_off10_inb L k k7_h5) f1)) $$ Y1
            sl_exec
            sl_for (laneV0 d L g4) $$ [F8_dst R6]
            case region =>
              intro (j : Fin k7_t2_loop.trips) _
              unfold laneV0
              iintro ⟨HA, %g, HB, %hl⟩
              sl_exec
              sl_step
              isplitl [HA]; · iexact HA
              iexists _; isplitl [HB]; · iexact HB
              ipureintro; exact lanes_step d L a4 a6 g4 g j _ _ hl
            · unfold laneV0
              isplitl [F8_dst]; · iexact F8_dst
              iexists _; isplitl [R6]; · iexact R6
              ipureintro; exact lanes_zero d L a4 a6 g4 _
            iintro %_ HI
            unfold laneV0
            icases HI with ⟨H4, %g6', H6, %hl6⟩
            have hl6 : Lanes d L a4 a6 g4 g6' 200 := Eq.mp (congrArg (Lanes d L a4 a6 g4 g6') trips2) hl6
            sl_exec
            sl_for (laneV1 d L g5) $$ [F9_dst R7]
            case region =>
              intro (j : Fin k7_t3_loop.trips) _
              unfold laneV1
              iintro ⟨HA, %g, HB, %hl⟩
              sl_exec
              sl_step
              isplitl [HA]; · iexact HA
              iexists _; isplitl [HB]; · iexact HB
              ipureintro; exact lanes_step' d L a5 a7 g5 g j _ _ hl
            · unfold laneV1
              isplitl [F9_dst]; · iexact F9_dst
              iexists _; isplitl [R7]; · iexact R7
              ipureintro; exact lanes_zero d L a5 a7 g5 _
            iintro %_ HI
            unfold laneV1
            icases HI with ⟨H5, %g7', H7, %hl7⟩
            have hl7 : Lanes d L a5 a7 g5 g7' 200 := Eq.mp (congrArg (Lanes d L a5 a7 g5 g7') trips3) hl7
            sl_exec
            sl_step
            isplitr; · iexact Hmw
            isplitl [HO]
            · iexists _; isplitr
              rotate_left
              · iexact HO
              ipureintro; intro p hp
              rcases Finset.mem_insert.mp hp with rfl | hp
              · exact .inr rfl
              rcases Finset.mem_insert.mp hp with rfl | hp
              · exact .inr rfl
              rcases Finset.mem_insert.mp hp with rfl | hp
              · exact .inr rfl
              rcases Finset.mem_insert.mp hp with rfl | hp
              · exact .inr rfl
              exact hW' p hp
            isplitl [HX F8_src F9_src]
            · iapply (Entails.of_eq (xSet_in (xP d L fx) k.val hk).symm)
              isplitl [F8_src]; · iapply (Entails.of_eq (xP_pos d L fx v0).symm); iexact F8_src
              isplitl [F9_src]; · iapply (Entails.of_eq (xP_pos d L fx v1).symm); iexact F9_src
              iexact HX
            isplitl [HOut F10_dst F11_dst]
            · iapply (Entails.of_eq (oSet_in (oMix d L fx (k.val + 1)) k.val hk (by omega)).symm)
              isplitl [F10_dst]; · iapply (Entails.of_eq ((oMix_lt d L fx (t := k.val + 1) (n := 2 * k.val - 2) (by omega)).trans (oQ_pos d L fx hm0.2)).symm); iexact F10_dst
              isplitl [F11_dst]
              · iapply (Entails.of_eq ((oMix_lt d L fx (t := k.val + 1) (n := 2 * k.val - 1) (by omega)).trans (oQ_pos d L fx (n := 2 * k.val - 1) (by have := hm1.2; rwa [show 2 * k.val + 1 - 2 = 2 * k.val - 1 by omega] at this))).symm)
                iapply (Entails.of_eq (congrArg (oqPiece d L fx) (show 2 * k.val + 1 - 2 = 2 * k.val - 1 by omega))); iexact F11_dst
              iapply (Entails.of_eq (oMix_core d L fx k.val)); iexact HOut
            isplitl [H4 F8]
            · iapply (Entails.of_eq (congrArg (inSlotV d L fx a4 cc7_scratch4.sem) (show 2 * k.val + 2 = 2 * (k.val + 1) by ring)))
              iapply (Entails.of_eq (inSlotV_neg d L fx v2).symm)
              isplitl [H4]; · iexists _; iexact H4
              iexact F8
            isplitl [F10 H6]
            · iapply (Entails.of_eq (congrArg (outSlotV d L fx a6 cc7_scratch6.sem) (show 2 * k.val + 2 = 2 * (k.val + 1) by ring)))
              iapply (fl_outV d L fx (off_5 L k v0) (k7_off5_inb L k k7_h2) v0 a4 a6 cc7_scratch6.sem f0 g4 g6' hl6 hin4); iexists _
              isplitr
              rotate_left
              · isplitl [F10]; · iexact F10
                iexact H6
              ipureintro; intro y; rfl
            isplitl [H5 F9]
            · iapply (Entails.of_eq (congrArg (inSlotV d L fx a5 cc7_scratch5.sem) (show 2 * k.val + 3 = 2 * (k.val + 1) + 1 by ring)))
              iapply (Entails.of_eq (inSlotV_neg d L fx v3').symm)
              isplitl [H5]; · iexists _; iexact H5
              iexact F9
            · iapply (Entails.of_eq (congrArg (outSlotV d L fx a7 cc7_scratch7.sem) (show 2 * k.val + 1 + 2 = 2 * (k.val + 1) + 1 by ring)))
              iapply (fl_outV d L fx (off_10 L k v1) (k7_off10_inb L k k7_h5) v1 a5 a7 cc7_scratch7.sem f1 g5 g7' hl7 hin5); iexists _
              isplitr
              rotate_left
              · isplitl [F11]; · iexact F11
                iexact H7
              ipureintro; intro y; rfl
          · -- the last trip of a tile with fifteen pieces: the second slot only drains
            have k7_h1 : k7_cond1 k = 1#1 := (cond1_iff k).mpr (by omega)
            have k7_h2 : k7_cond2 L k = 1#1 := cond2_iff L k
            have k7_h3 : ¬ k7_cond3 L k = 1#1 := fun h => absurd ((cond3_iff L k).mp h) (by omega)
            have k7_h4 : k7_cond4 k = 1#1 := (cond4_iff k).mpr (by omega)
            have k7_h5 : ¬ k7_cond5 L k = 1#1 := fun h => absurd ((cond5_iff L k).mp h) (by first | (unfold valid big at *; omega) | (unfold big at *; omega) | omega)
            have k7_h6 : ¬ k7_cond6 L k = 1#1 := fun h => absurd ((cond6_iff L k).mp h) (by first | (unfold valid big at *; omega) | (unfold big at *; omega) | omega)
            have v0 : valid L (2 * k.val) := by unfold valid big at *; omega
            have v1 : ¬ valid L (2 * k.val + 1) := by unfold valid big at *; omega
            have v2 : ¬ valid L (2 * k.val + 2) := by unfold valid big at *; omega
            have v3' : ¬ valid L (2 * k.val + 3) := by unfold valid big at *; omega
            have hm0 : 2 ≤ 2 * k.val ∧ valid L (2 * k.val - 2) := ⟨by omega, by unfold valid big at *; omega⟩
            have hm1 : 2 ≤ 2 * k.val + 1 ∧ valid L (2 * k.val + 1 - 2) := ⟨by omega, by unfold valid big at *; omega⟩
            ihave S8 := (Entails.of_eq (inSlotV_pos d L fx v0)) $$ S8
            icases S8 with ⟨%g4, %hin4, F8⟩
            ihave S9 := (Entails.of_eq (inSlotV_neg d L fx v1)) $$ S9
            icases S9 with ⟨⟨%g5, H5⟩, F9⟩
            ihave S10 := (Entails.of_eq (outSlotV_pos d L fx hm0)) $$ S10
            icases S10 with ⟨%g6, F10, R6⟩
            ihave S11 := (Entails.of_eq (outSlotV_pos d L fx hm1)) $$ S11
            icases S11 with ⟨%g7, F11, R7⟩
            ihave HX := (Entails.of_eq (xSet_out (xP d L fx) k.val hk)) $$ HX
            icases HX with ⟨-, -, HX⟩
            ihave HOut := (Entails.of_eq (oSet_out (oMix d L fx k.val) k.val hk)) $$ HOut
            icases HOut with ⟨Y0, -, HOut⟩
            ihave Y0 := (Entails.of_eq ((oMix_ge d L fx (t := k.val) (n := 2 * k.val) (by omega)).trans (oP_pos (F := F) d L v0))) $$ Y0
            icases Y0 with ⟨%f0, Y0⟩
            ihave Y0 := (Entails.of_eq (out_congr d L (off_5 L k v0).symm (out_inb L _) (k7_off5_inb L k k7_h2) f0)) $$ Y0
            sl_exec
            sl_for (laneV0 d L g4) $$ [F8_dst R6]
            case region =>
              intro (j : Fin k7_t2_loop.trips) _
              unfold laneV0
              iintro ⟨HA, %g, HB, %hl⟩
              sl_exec
              sl_step
              isplitl [HA]; · iexact HA
              iexists _; isplitl [HB]; · iexact HB
              ipureintro; exact lanes_step d L a4 a6 g4 g j _ _ hl
            · unfold laneV0
              isplitl [F8_dst]; · iexact F8_dst
              iexists _; isplitl [R6]; · iexact R6
              ipureintro; exact lanes_zero d L a4 a6 g4 _
            iintro %_ HI
            unfold laneV0
            icases HI with ⟨H4, %g6', H6, %hl6⟩
            have hl6 : Lanes d L a4 a6 g4 g6' 200 := Eq.mp (congrArg (Lanes d L a4 a6 g4 g6') trips2) hl6
            sl_exec
            sl_step
            isplitr; · iexact Hmw
            isplitl [HO]
            · iexists _; isplitr
              rotate_left
              · iexact HO
              ipureintro; intro p hp
              rcases Finset.mem_insert.mp hp with rfl | hp
              · exact .inr rfl
              rcases Finset.mem_insert.mp hp with rfl | hp
              · exact .inr rfl
              rcases Finset.mem_insert.mp hp with rfl | hp
              · exact .inr rfl
              exact hW' p hp
            isplitl [HX F8_src]
            · iapply (Entails.of_eq (xSet_in (xP d L fx) k.val hk).symm)
              isplitl [F8_src]; · iapply (Entails.of_eq (xP_pos d L fx v0).symm); iexact F8_src
              isplitr; · iapply (Entails.of_eq (xP_neg d L fx v1).symm); iempintro
              iexact HX
            isplitl [HOut F10_dst F11_dst]
            · iapply (Entails.of_eq (oSet_in (oMix d L fx (k.val + 1)) k.val hk (by omega)).symm)
              isplitl [F10_dst]; · iapply (Entails.of_eq ((oMix_lt d L fx (t := k.val + 1) (n := 2 * k.val - 2) (by omega)).trans (oQ_pos d L fx hm0.2)).symm); iexact F10_dst
              isplitl [F11_dst]
              · iapply (Entails.of_eq ((oMix_lt d L fx (t := k.val + 1) (n := 2 * k.val - 1) (by omega)).trans (oQ_pos d L fx (n := 2 * k.val - 1) (by have := hm1.2; rwa [show 2 * k.val + 1 - 2 = 2 * k.val - 1 by omega] at this))).symm)
                iapply (Entails.of_eq (congrArg (oqPiece d L fx) (show 2 * k.val + 1 - 2 = 2 * k.val - 1 by omega))); iexact F11_dst
              iapply (Entails.of_eq (oMix_core d L fx k.val)); iexact HOut
            isplitl [H4 F8]
            · iapply (Entails.of_eq (congrArg (inSlotV d L fx a4 cc7_scratch4.sem) (show 2 * k.val + 2 = 2 * (k.val + 1) by ring)))
              iapply (Entails.of_eq (inSlotV_neg d L fx v2).symm)
              isplitl [H4]; · iexists _; iexact H4
              iexact F8
            isplitl [F10 H6]
            · iapply (Entails.of_eq (congrArg (outSlotV d L fx a6 cc7_scratch6.sem) (show 2 * k.val + 2 = 2 * (k.val + 1) by ring)))
              iapply (fl_outV d L fx (off_5 L k v0) (k7_off5_inb L k k7_h2) v0 a4 a6 cc7_scratch6.sem f0 g4 g6' hl6 hin4); iexists _
              isplitr
              rotate_left
              · isplitl [F10]; · iexact F10
                iexact H6
              ipureintro; intro y; rfl
            isplitl [H5 F9]
            · iapply (Entails.of_eq (congrArg (inSlotV d L fx a5 cc7_scratch5.sem) (show 2 * k.val + 3 = 2 * (k.val + 1) + 1 by ring)))
              iapply (Entails.of_eq (inSlotV_neg d L fx v3').symm)
              isplitl [H5]; · iexists _; iexact H5
              iexact F9
            · iapply (Entails.of_eq (outSlotV_neg d L fx (m := 2 * (k.val + 1) + 1) (by intro h; apply v1; have := h.2; rwa [show 2 * (k.val + 1) + 1 - 2 = 2 * k.val + 1 by omega] at this)).symm)
              isplitl [R7]; · iexists _; iexact R7
              iexact F11
    · have hk0 : k.val = 0 := by omega
      -- the first trip: nothing to drain
      have k7_h1 : ¬ k7_cond1 k = 1#1 := fun h => absurd ((cond1_iff k).mp h) (by omega)
      have k7_h2 : k7_cond2 L k = 1#1 := cond2_iff L k
      have k7_h3 : k7_cond3 L k = 1#1 := (cond3_iff L k).mpr (by omega)
      have k7_h4 : ¬ k7_cond4 k = 1#1 := fun h => absurd ((cond4_iff k).mp h) (by omega)
      have k7_h5 : k7_cond5 L k = 1#1 := (cond5_iff L k).mpr (by first | (unfold valid big at *; omega) | (unfold big at *; omega) | omega)
      have k7_h6 : k7_cond6 L k = 1#1 := (cond6_iff L k).mpr (by first | (unfold valid big at *; omega) | (unfold big at *; omega) | omega)
      have v0 : valid L (2 * k.val) := by unfold valid big at *; omega
      have v1 : valid L (2 * k.val + 1) := by unfold valid big at *; omega
      have v2 : valid L (2 * k.val + 2) := by unfold valid big at *; omega
      have v3' : valid L (2 * k.val + 3) := by unfold valid big at *; omega
      have hm0 : ¬ (2 ≤ 2 * k.val ∧ valid L (2 * k.val - 2)) := by omega
      have hm1 : ¬ (2 ≤ 2 * k.val + 1 ∧ valid L (2 * k.val + 1 - 2)) := by omega
      ihave S8 := (Entails.of_eq (inSlotV_pos d L fx v0)) $$ S8
      icases S8 with ⟨%g4, %hin4, F8⟩
      ihave S9 := (Entails.of_eq (inSlotV_pos d L fx v1)) $$ S9
      icases S9 with ⟨%g5, %hin5, F9⟩
      ihave S10 := (Entails.of_eq (outSlotV_neg d L fx hm0)) $$ S10
      icases S10 with ⟨⟨%g6, R6⟩, F10⟩
      ihave S11 := (Entails.of_eq (outSlotV_neg d L fx hm1)) $$ S11
      icases S11 with ⟨⟨%g7, R7⟩, F11⟩
      ihave HX := (Entails.of_eq (xSet_out (xP d L fx) k.val hk)) $$ HX
      icases HX with ⟨X2, X3, HX⟩
      ihave X2 := (Entails.of_eq (xP_pos d L fx v2)) $$ X2
      ihave X2 := (Entails.of_eq (in_congr d L (off_6 L k v2).symm (in_inb L _) (k7_off6_inb L k k7_h3) fx)) $$ X2
      ihave X3 := (Entails.of_eq (xP_pos d L fx v3')) $$ X3
      ihave X3 := (Entails.of_eq (in_congr d L (off_11 L k v3').symm (in_inb L _) (k7_off11_inb L k k7_h6) fx)) $$ X3
      ihave HOut := (Entails.of_eq (oSet_out (oMix d L fx k.val) k.val hk)) $$ HOut
      icases HOut with ⟨Y0, Y1, HOut⟩
      ihave Y0 := (Entails.of_eq ((oMix_ge d L fx (t := k.val) (n := 2 * k.val) (by omega)).trans (oP_pos (F := F) d L v0))) $$ Y0
      icases Y0 with ⟨%f0, Y0⟩
      ihave Y0 := (Entails.of_eq (out_congr d L (off_5 L k v0).symm (out_inb L _) (k7_off5_inb L k k7_h2) f0)) $$ Y0
      ihave Y1 := (Entails.of_eq ((oMix_ge d L fx (t := k.val) (n := 2 * k.val + 1) (by omega)).trans (oP_pos (F := F) d L v1))) $$ Y1
      icases Y1 with ⟨%f1, Y1⟩
      ihave Y1 := (Entails.of_eq (out_congr d L (off_10 L k v1).symm (out_inb L _) (k7_off10_inb L k k7_h5) f1)) $$ Y1
      sl_exec
      sl_for (laneV0 d L g4) $$ [F8_dst R6]
      case region =>
        intro (j : Fin k7_t2_loop.trips) _
        unfold laneV0
        iintro ⟨HA, %g, HB, %hl⟩
        sl_exec
        sl_step
        isplitl [HA]; · iexact HA
        iexists _; isplitl [HB]; · iexact HB
        ipureintro; exact lanes_step d L a4 a6 g4 g j _ _ hl
      · unfold laneV0
        isplitl [F8_dst]; · iexact F8_dst
        iexists _; isplitl [R6]; · iexact R6
        ipureintro; exact lanes_zero d L a4 a6 g4 _
      iintro %_ HI
      unfold laneV0
      icases HI with ⟨H4, %g6', H6, %hl6⟩
      have hl6 : Lanes d L a4 a6 g4 g6' 200 := Eq.mp (congrArg (Lanes d L a4 a6 g4 g6') trips2) hl6
      sl_exec
      sl_for (laneV1 d L g5) $$ [F9_dst R7]
      case region =>
        intro (j : Fin k7_t3_loop.trips) _
        unfold laneV1
        iintro ⟨HA, %g, HB, %hl⟩
        sl_exec
        sl_step
        isplitl [HA]; · iexact HA
        iexists _; isplitl [HB]; · iexact HB
        ipureintro; exact lanes_step' d L a5 a7 g5 g j _ _ hl
      · unfold laneV1
        isplitl [F9_dst]; · iexact F9_dst
        iexists _; isplitl [R7]; · iexact R7
        ipureintro; exact lanes_zero d L a5 a7 g5 _
      iintro %_ HI
      unfold laneV1
      icases HI with ⟨H5, %g7', H7, %hl7⟩
      have hl7 : Lanes d L a5 a7 g5 g7' 200 := Eq.mp (congrArg (Lanes d L a5 a7 g5 g7') trips3) hl7
      sl_exec
      sl_step
      isplitr; · iexact Hmw
      isplitl [HO]
      · iexists _; isplitr
        rotate_left
        · iexact HO
        ipureintro; intro p hp
        rcases Finset.mem_insert.mp hp with rfl | hp
        · exact .inr rfl
        rcases Finset.mem_insert.mp hp with rfl | hp
        · exact .inr rfl
        exact hW' p hp
      isplitl [HX F8_src F9_src]
      · iapply (Entails.of_eq (xSet_in (xP d L fx) k.val hk).symm)
        isplitl [F8_src]; · iapply (Entails.of_eq (xP_pos d L fx v0).symm); iexact F8_src
        isplitl [F9_src]; · iapply (Entails.of_eq (xP_pos d L fx v1).symm); iexact F9_src
        iexact HX
      isplitl [HOut]
      · iapply (Entails.of_eq (congrArg (fun s => bigSep s (oMix d L fx (k.val + 1))) (show oCore k.val = oSet (k.val + 1) by rw [hk0]; decide)))
        iapply (Entails.of_eq (oMix_core d L fx k.val)); iexact HOut
      isplitl [F8]
      · iapply (Entails.of_eq (congrArg (inSlotV d L fx a4 cc7_scratch4.sem) (show 2 * k.val + 2 = 2 * (k.val + 1) by ring)))
        iapply (fl_inV d L fx (off_6 L k v2) (k7_off6_inb L k k7_h3) v2 a4 cc7_scratch4.sem); iexists _, _
        isplitr
        rotate_left
        · iexact F8
        ipureintro; intro y; rfl
      isplitl [F10 H6]
      · iapply (Entails.of_eq (congrArg (outSlotV d L fx a6 cc7_scratch6.sem) (show 2 * k.val + 2 = 2 * (k.val + 1) by ring)))
        iapply (fl_outV d L fx (off_5 L k v0) (k7_off5_inb L k k7_h2) v0 a4 a6 cc7_scratch6.sem f0 g4 g6' hl6 hin4); iexists _
        isplitr
        rotate_left
        · isplitl [F10]; · iexact F10
          iexact H6
        ipureintro; intro y; rfl
      isplitl [F9]
      · iapply (Entails.of_eq (congrArg (inSlotV d L fx a5 cc7_scratch5.sem) (show 2 * k.val + 3 = 2 * (k.val + 1) + 1 by ring)))
        iapply (fl_inV d L fx (off_11 L k v3') (k7_off11_inb L k k7_h6) v3' a5 cc7_scratch5.sem); iexists _, _
        isplitr
        rotate_left
        · iexact F9
        ipureintro; intro y; rfl
      · iapply (Entails.of_eq (congrArg (outSlotV d L fx a7 cc7_scratch7.sem) (show 2 * k.val + 1 + 2 = 2 * (k.val + 1) + 1 by ring)))
        iapply (fl_outV d L fx (off_10 L k v1) (k7_off10_inb L k k7_h5) v1 a5 a7 cc7_scratch7.sem f1 g5 g7' hl7 hin5); iexists _
        isplitr
        rotate_left
        · isplitl [F11]; · iexact F11
          iexact H7
        ipureintro; intro y; rfl
  · unfold invV
    isplitr; · iexact Hmw
    isplitl [HO]
    · iexists W; isplitr
      · ipureintro; exact fun p hp => .inl hp
      · iexact HO
    isplitl [HX]; · iexact HX
    isplitl [HOut]; · iapply (Entails.of_eq (oMix_zero d L fx).symm); iexact HOut
    isplitl [S8]; · iexact S8
    isplitl [H6 Hs10]
    · rw [outSlotV_neg d L fx (by omega)]; isplitl [H6]; · iexists _; iexact H6
      iexact Hs10
    isplitl [S9]; · iexact S9
    rw [outSlotV_neg d L fx (by omega)]; isplitl [H7]; · iexists _; iexact H7
    iexact Hs11
  iintro %acc' HI
  ihave HI := (Entails.of_eq (congrArg (fun t => invV d L O W fx t acc') trips1)) $$ HI
  unfold invV
  icases HI with ⟨-, ⟨%W', %hW', HO⟩, HX, HOut, S8, S10, S9, S11⟩
  have nv16 : ¬ valid L (2 * 8) := by unfold valid; omega
  have nv17 : ¬ valid L (2 * 8 + 1) := by unfold valid; omega
  have hm14 : 2 ≤ 2 * 8 ∧ valid L (2 * 8 - 2) := ⟨by omega, Or.inl (by omega)⟩
  ihave S8 := (Entails.of_eq (inSlotV_neg d L fx nv16)) $$ S8
  icases S8 with ⟨⟨%g4', H4⟩, Hs8⟩
  ihave S9 := (Entails.of_eq (inSlotV_neg d L fx nv17)) $$ S9
  icases S9 with ⟨⟨%g5', H5⟩, Hs9⟩
  ihave S10 := (Entails.of_eq (outSlotV_pos d L fx hm14)) $$ S10
  icases S10 with ⟨%g6', F10, R6⟩
  by_cases hb : big L
  · have k7_h8 : k7_cond8 L = 1#1 := (cond8_iff L).mpr hb
    have hm15 : 2 ≤ 2 * 8 + 1 ∧ valid L (2 * 8 + 1 - 2) := ⟨by omega, Or.inr ⟨by omega, hb⟩⟩
    ihave S11 := (Entails.of_eq (outSlotV_pos d L fx hm15)) $$ S11
    icases S11 with ⟨%g7', F11, R7⟩
    sl_exec
    sl_step
    isplitl [HX]; · iapply (xRange_end d L fx); iexact HX
    isplitl [HOut F10_dst F11_dst]
    · iapply (Entails.of_eq (oRange_end (oQ d L fx)).symm)
      isplitl [F10_dst]; · iapply (Entails.of_eq (oQ_pos d L fx hm14.2).symm); iexact F10_dst
      isplitl [F11_dst]; · iapply (Entails.of_eq (oQ_pos d L fx hm15.2).symm); iexact F11_dst
      iapply (Entails.of_eq (oMix_end d L fx)); iexact HOut
    isplitl [H4]; · iexists _; iexact H4
    isplitl [H5]; · iexists _; iexact H5
    isplitl [R6]; · iexists _; iexact R6
    isplitl [R7]; · iexists _; iexact R7
    isplitl [Hs8]; · iexact Hs8
    isplitl [Hs9]; · iexact Hs9
    isplitl [F10]; · iexact F10
    isplitl [F11]; · iexact F11
    isplitl [HO]
    · iexists _; isplitr
      rotate_left
      · iexact HO
      ipureintro; intro p hp
      rcases Finset.mem_insert.mp hp with rfl | hp
      · exact .inr rfl
      rcases Finset.mem_insert.mp hp with rfl | hp
      · exact .inr rfl
      exact hW' p hp
    iexact HR
  · have k7_h8 : ¬ k7_cond8 L = 1#1 := fun h => hb ((cond8_iff L).mp h)
    have hm15 : ¬ (2 ≤ 2 * 8 + 1 ∧ valid L (2 * 8 + 1 - 2)) := by intro h; have := h.2; unfold valid at this; omega
    ihave S11 := (Entails.of_eq (outSlotV_neg d L fx hm15)) $$ S11
    icases S11 with ⟨⟨%g7', R7⟩, F11⟩
    sl_exec
    sl_step
    isplitl [HX]; · iapply (xRange_end d L fx); iexact HX
    isplitl [HOut F10_dst]
    · iapply (Entails.of_eq (oRange_end (oQ d L fx)).symm)
      isplitl [F10_dst]; · iapply (Entails.of_eq (oQ_pos d L fx hm14.2).symm); iexact F10_dst
      isplitr; · iapply (Entails.of_eq (oQ_neg d L fx (n := 15) (by unfold valid; omega)).symm); iempintro
      iapply (Entails.of_eq (oMix_end d L fx)); iexact HOut
    isplitl [H4]; · iexists _; iexact H4
    isplitl [H5]; · iexists _; iexact H5
    isplitl [R6]; · iexists _; iexact R6
    isplitl [R7]; · iexists _; iexact R7
    isplitl [Hs8]; · iexact Hs8
    isplitl [Hs9]; · iexact Hs9
    isplitl [F10]; · iexact F10
    isplitl [F11]; · iexact F11
    isplitl [HO]
    · iexists _; isplitr
      rotate_left
      · iexact HO
      ipureintro; intro p hp
      rcases Finset.mem_insert.mp hp with rfl | hp
      · exact .inr rfl
      exact hW' p hp
    iexact HR

/-! The subcore's scoped storage: the four staging buffers and the four semaphores of this call, and the rest. -/

abbrev c8 : GSem nD τ sig := (thr d L, SemLoc.dma cc7_scratch4.sem)
abbrev c9 : GSem nD τ sig := (thr d L, SemLoc.dma cc7_scratch5.sem)
abbrev c10 : GSem nD τ sig := (thr d L, SemLoc.dma cc7_scratch6.sem)
abbrev c11 : GSem nD τ sig := (thr d L, SemLoc.dma cc7_scratch7.sem)

omit [FloatOps F] in
theorem ownSems0_V :
    (ownSems0 (thr d L) : sProp 𝕄)
      = iprop(semVal (c8 d L) 0 ∗ semVal (c9 d L) 0 ∗ semVal (c10 d L) 0 ∗ semVal (c11 d L) 0
          ∗ bigSep (((((ownCells (thr d L)).erase (c8 d L)).erase (c9 d L)).erase (c10 d L)).erase (c11 d L)) fun g => semVal g 0) := by
  unfold SparseCore.Cfg.ownSems0
  rw [SparseCore.bigSep_erase' ((mem_ownCells (g := c8 d L)).mpr ⟨rfl, by
      show (SemLoc.dma cc7_scratch4.sem : SemLoc sig).isScoped .scVector = true; decide⟩),
    SparseCore.bigSep_erase' (Finset.mem_erase.mpr ⟨fun e => absurd (Prod.mk.inj e).2 (by decide), (mem_ownCells (g := c9 d L)).mpr ⟨rfl, by
      show (SemLoc.dma cc7_scratch5.sem : SemLoc sig).isScoped .scVector = true; decide⟩⟩),
    SparseCore.bigSep_erase' (Finset.mem_erase.mpr ⟨fun e => absurd (Prod.mk.inj e).2 (by decide), Finset.mem_erase.mpr ⟨fun e => absurd (Prod.mk.inj e).2 (by decide),
      (mem_ownCells (g := c10 d L)).mpr ⟨rfl, by show (SemLoc.dma cc7_scratch6.sem : SemLoc sig).isScoped .scVector = true; decide⟩⟩⟩),
    SparseCore.bigSep_erase' (Finset.mem_erase.mpr ⟨fun e => absurd (Prod.mk.inj e).2 (by decide), Finset.mem_erase.mpr ⟨fun e => absurd (Prod.mk.inj e).2 (by decide),
      Finset.mem_erase.mpr ⟨fun e => absurd (Prod.mk.inj e).2 (by decide),
      (mem_ownCells (g := c11 d L)).mpr ⟨rfl, by show (SemLoc.dma cc7_scratch7.sem : SemLoc sig).isScoped .scVector = true; decide⟩⟩⟩⟩)]

abbrev pV (L : grid7.Coords) : Proc τ := Proc.scVector (cV L) (jV L)

omit [FloatOps F] in
theorem ownBufs_V :
    (ownBufs (thr d L) : sProp 𝕄)
      = iprop((∃ f, (thr d L).loc cc7_scratch0 ↦{fullShare} f) ∗ (∃ f, (thr d L).loc cc7_scratch1 ↦{fullShare} f)
          ∗ (∃ f, (thr d L).loc cc7_scratch2 ↦{fullShare} f) ∗ (∃ f, (thr d L).loc cc7_scratch3 ↦{fullShare} f)
          ∗ bigSep (((((ownRefs (τ := τ) (pV L)).erase ((pV L).devRef cc7_scratch0)).erase ((pV L).devRef cc7_scratch1)).erase
              ((pV L).devRef cc7_scratch2)).erase ((pV L).devRef cc7_scratch3))
              fun b => iprop(∃ f, ((d, b) : Loc nD τ sig) ↦{fullShare} f)) := by
  unfold SparseCore.Cfg.ownBufs
  refine (SparseCore.bigSep_erase' (SparseCore.Cfg.mem_ownRefs_of_owner (p := pV L) (b := (pV L).devRef cc7_scratch0) rfl)).trans ?_
  rw [SparseCore.bigSep_erase' (Finset.mem_erase.mpr ⟨fun e => absurd (Proc.devRef_injective _ e) (show (cc7_scratch1 : Ref sig .scVector) ≠ cc7_scratch0 by decide),
      SparseCore.Cfg.mem_ownRefs_of_owner (p := pV L) (b := (pV L).devRef cc7_scratch1) rfl⟩),
    SparseCore.bigSep_erase' (Finset.mem_erase.mpr ⟨fun e => absurd (Proc.devRef_injective _ e) (show (cc7_scratch2 : Ref sig .scVector) ≠ cc7_scratch1 by decide),
      Finset.mem_erase.mpr ⟨fun e => absurd (Proc.devRef_injective _ e) (show (cc7_scratch2 : Ref sig .scVector) ≠ cc7_scratch0 by decide),
      SparseCore.Cfg.mem_ownRefs_of_owner (p := pV L) (b := (pV L).devRef cc7_scratch2) rfl⟩⟩),
    SparseCore.bigSep_erase' (Finset.mem_erase.mpr ⟨fun e => absurd (Proc.devRef_injective _ e) (show (cc7_scratch3 : Ref sig .scVector) ≠ cc7_scratch2 by decide),
      Finset.mem_erase.mpr ⟨fun e => absurd (Proc.devRef_injective _ e) (show (cc7_scratch3 : Ref sig .scVector) ≠ cc7_scratch1 by decide),
      Finset.mem_erase.mpr ⟨fun e => absurd (Proc.devRef_injective _ e) (show (cc7_scratch3 : Ref sig .scVector) ≠ cc7_scratch0 by decide),
      SparseCore.Cfg.mem_ownRefs_of_owner (p := pV L) (b := (pV L).devRef cc7_scratch3) rfl⟩⟩⟩)]

/-- The rest of the subcore's scoped storage, which the task does not touch. -/
def restR : sProp 𝕄 :=
  iprop((bigSep (((((ownRefs (τ := τ) (pV L)).erase ((pV L).devRef cc7_scratch0)).erase ((pV L).devRef cc7_scratch1)).erase
              ((pV L).devRef cc7_scratch2)).erase ((pV L).devRef cc7_scratch3))
              fun b => iprop(∃ f, ((d, b) : Loc nD τ sig) ↦{fullShare} f))
      ∗ bigSep (((((ownCells (thr d L)).erase (c8 d L)).erase (c9 d L)).erase (c10 d L)).erase (c11 d L)) fun g => semVal g 0)

theorem body_pre (hO : ∀ g, O g none = 0) :
    iprop(levAts (K (F := F)).L (K (F := F)).lev ∗ emp ∗ goRes d L fx ∗ ownBufs (thr d L) ∗ ownSems0 (thr d L) ∗ owes (thr d L) O W)
      ⊢ runPre d L O W fx (restR (F := F) d L) := by
  rw [ownSems0_V, ownBufs_V]
  unfold goRes runPre restR
  iintro ⟨#Hlv, -, ⟨HX, HOut⟩, ⟨H4, H5, H6, H7, Hbufs⟩, ⟨Hs8, Hs9, Hs10, Hs11, Hsems⟩, HO⟩
  ihave Hmw := ((K (F := F)).mayWaits_none (thr := thr d L) hO) $$ Hlv
  isplitr; · iexact Hmw
  isplitl [HO]; · iexact HO
  isplitl [HX]; · iexact HX
  isplitl [HOut]; · iexact HOut
  isplitl [H4]; · iexact H4
  isplitl [H5]; · iexact H5
  isplitl [H6]; · iexact H6
  isplitl [H7]; · iexact H7
  isplitl [Hs8]; · iexact Hs8
  isplitl [Hs9]; · iexact Hs9
  isplitl [Hs10]; · iexact Hs10
  isplitl [Hs11]; · iexact Hs11
  isplitl [Hbufs]; · iexact Hbufs
  iexact Hsems

theorem body_post :
    runPost d L O W fx (restR (F := F) d L)
      ⊢ iprop(tdRes d L fx ∗ ownBufs (thr d L) ∗ ownSems0 (thr d L) ∗ ∃ W', ⌜∀ p ∈ W', p ∈ W ∨ p.2 = none⌝ ∗ owes (thr d L) O W') := by
  rw [ownSems0_V, ownBufs_V]
  unfold tdRes runPost restR
  iintro ⟨HX, HOut, H4, H5, H6, H7, Hs8, Hs9, Hs10, Hs11, HW, Hbufs, Hsems⟩
  isplitl [HX HOut]
  · isplitl [HX]; · iexact HX
    iexact HOut
  isplitl [H4 H5 H6 H7 Hbufs]
  · isplitl [H4]; · iexact H4
    isplitl [H5]; · iexact H5
    isplitl [H6]; · iexact H6
    isplitl [H7]; · iexact H7
    iexact Hbufs
  isplitl [Hs8 Hs9 Hs10 Hs11 Hsems]
  · isplitl [Hs8]; · iexact Hs8
    isplitl [Hs9]; · iexact Hs9
    isplitl [Hs10]; · iexact Hs10
    isplitl [Hs11]; · iexact Hs11
    iexact Hsems
  iexact HW

/-- The task in the launch theorem's shape: from what the call hands the tile and the subcore's scoped storage to
    what the tile hands back and the storage again. -/
theorem tile_body (hF : (K (F := F)).Facts) (hO : ∀ g, O g none = 0) :
    iprop(levAts (K (F := F)).L (K (F := F)).lev ∗ emp ∗ goRes d L fx ∗ scopedBufs (thr d L) ∗ scopedSems0 (thr d L) ∗ owes (thr d L) O W)
      ⊢ wp frame (wpE (defs₀ (F := F)) 𝒱₀ (thr d L) none) Set.univ
          (cc7_sc_group L xtW (Memref.isWhole_whole _) oW (Memref.isWhole_whole _) a4 (Memref.isWhole_whole _) a5 (Memref.isWhole_whole _)
            a6 (Memref.isWhole_whole _) a7 (Memref.isWhole_whole _) cc7_scratch4 cc7_scratch5 cc7_scratch6 cc7_scratch7)
          fun _ => iprop(tdRes d L fx ∗ scopedBufs (thr d L) ∗ scopedSems0 (thr d L)
            ∗ ∃ W', ⌜∀ p ∈ W', p ∈ W ∨ p.2 = none⌝ ∗ owes (thr d L) O W') := by
  rw [(K (F := F)).scopedBufs_V hF d (cV L) (jV L), SparseCore.Cfg.scopedSems0_V (Val := Elt F) d (cV L) (jV L)]
  exact (body_pre d L O W fx hO).trans ((tile_run d L O W fx (restR (F := F) d L)).trans (wp_mono frame _ _ fun _ => body_post d L O W fx))

end Tile

end Cert.Proof.TileB7

end
-- ==== Proof.TileVal8.lean ====
/-
  What the staging buffers of one vector subcore hold while it copies a piece of 3200 consecutive elements of row 8 of
  the transposed argument into the flat result, read index by index. No program and no ownership here: only the contents.

  A transfer lands the piece in row 0 of an 8 × 3200 staging array (`InRow`: position (0, t) of that row holds element
  (0, pos + t) of the transposed argument, `pos` the piece's first column). A loop of 200 trips copies that row, 16 lanes
  per trip, into the first 3200 elements of a flat staging array of 25600: trip `j` reads the 1 × 16 window at columns
  [16 j, 16 j + 16) of row 0 and writes it, flattened, at elements [16 j, 16 j + 16). After `j` trips the first 16 j
  elements of the flat array are the first 16 j elements of the row (`Lanes`); a trip extends the prefix by 16
  (`lanes_step`: an element below 16 j is outside the window written and keeps its value, an element of the window reads
  the lane written there, which is the row's element at the same column). A second transfer writes the first 3200
  elements of the flat array to the piece of the result at the same `pos`; so every element of that piece of the result
  holds the element of row 8 of the transposed argument at its own position (`out_written`): the composite of the three
  index maps t ↦ (0, pos + t) ↦ (0, t) ↦ t ↦ pos + t is the identity on positions of the row.
-/
import proofs.«206869_g37898791420194_cont_8to1_b_558_20_alg».proof.Proof.TileK8Defs
import proofs.«206869_g37898791420194_cont_8to1_b_558_20_alg».proof.Proof.Spec
import Idealize.ShloMosaic.Lib.WritesUnit
import Idealize.ShloMosaic.Lib.ValueLayout

noncomputable section

namespace Cert.Proof.TileVal8

open Cert.Proof.TileK8 Cert.KernelIdeal Cert.KernelIdeal.Gen
open Idealize.ShloMosaic Idealize.ShloMosaic.ValueIdx

variable {F : FTy → Type} [FloatOps F]
variable (d : Dev nD) (L : grid8.Coords)
variable (fx : Buf (Elt F) ((Memref.whole main_v0_scv : Memref sig .scVector .hbm S22x1600000 .f32).view.loc (thr d L)))

abbrev rowRect : Rect S8x3200 := Rect.unit (s := S8x3200) ![0, 0] S1x3200.size inb_S8x3200_S1x3200_0_0

/-- row 0 of the staging array is piece n of the argument row -/
def InRow (a : Memref sig .scVector .vmem S8x3200 .f32) (ga : Buf (Elt F) (a.view.loc (thr d L))) (n : ℕ) : Prop :=
  ∀ y : S1x3200.Idx, a.view.read (Elt F) ga (rowRect.emb y) = (inM L n).view.read (Elt F) fx y

theorem inRow_fetch (a : Memref sig .scVector .vmem S8x3200 .f32) (gold : Buf (Elt F) (a.view.loc (thr d L)))
    (w : S1x3200.Idx → Elt F .f32) (n : ℕ) (hw : ∀ y, w y = (inM L n).view.read (Elt F) fx y) :
    InRow d L fx a (a.view.writes (Elt F) gold [⟨rowRect, w⟩]) n :=
  fun y => (View.read_writes_cons_emb a.view gold rowRect w [] y).trans (hw y)

def Lanes (a : Memref sig .scVector .vmem S8x3200 .f32) (b : Memref sig .scVector .vmem S25600 .f32)
    (ga : Buf (Elt F) (a.view.loc (thr d L))) (gb : Buf (Elt F) (b.view.loc (thr d L))) (j : ℕ) : Prop :=
  ∀ (r : ℕ) (hr : r < 3200), r < 16 * j →
    b.view.read (Elt F) gb (ix1 (⟨r, by omega⟩ : Fin 25600)) = a.view.read (Elt F) ga (ix2 (0 : Fin 8) (⟨r, hr⟩ : Fin 3200))

theorem lanes_zero (a : Memref sig .scVector .vmem S8x3200 .f32) (b : Memref sig .scVector .vmem S25600 .f32)
    (ga : Buf (Elt F) (a.view.loc (thr d L))) (gb : Buf (Elt F) (b.view.loc (thr d L))) : Lanes d L a b ga gb 0 := by
  intro r hr h; omega

/-- The 1 × 16 window at column `c` of the staging array, read at lane `t`, is element `(0, c + t)`. -/
theorem idx_window {off : Fin 2 → ℕ} {c : ℕ} (h : off = ![0, c]) (p : ∀ a', off a' + S1x16.size a' ≤ S8x3200.size a')
    (t : Fin 16) (hr : c + t.val < 3200) :
    (Rect.unit (s := S8x3200) off S1x16.size p).toLoadRect.idx (ix2 (0 : Fin 1) t) = ix2 (0 : Fin 8) (⟨c + t.val, hr⟩ : Fin 3200) := by
  subst h
  funext a'; apply Fin.ext
  rw [LoadRect.idx_apply]
  match a' with
  | ⟨0, _⟩ => show 0 + 1 * 0 = 0; omega
  | ⟨1, _⟩ => show c + 1 * t.val = c + t.val; omega

/-- One trip of a lane-copy loop, the offsets given by their closed forms. -/
theorem lanes_step_core (a : Memref sig .scVector .vmem S8x3200 .f32) (b : Memref sig .scVector .vmem S25600 .f32)
    (ga : Buf (Elt F) (a.view.loc (thr d L))) (gb : Buf (Elt F) (b.view.loc (thr d L)))
    (t : ℕ) {off3 : Fin 2 → ℕ} {off4 : Fin 1 → ℕ} (h3 : off3 = ![0, 16 * t]) (h4 : off4 = ![16 * t])
    (p3 : ∀ a', off3 a' + S1x16.size a' ≤ S8x3200.size a') (p4 : ∀ a', off4 a' + S16.size a' ≤ S25600.size a')
    (h : Lanes d L a b ga gb t) :
    Lanes d L a b ga (b.view.writes (Elt F) gb [⟨Rect.unit (s := S25600) off4 S16.size p4,
      shapeCast S16 (a.view.readAt (Elt F) (Rect.unit (s := S8x3200) off3 S1x16.size p3).toLoadRect ga) shapeCasts_S1x16_S16⟩]) (t + 1) := by
  intro r hr hlt
  by_cases hlo : r < 16 * t
  · refine (View.read_writes_cons_unit_of_not_mem b.view gb p4 _ [] _ h4 (0 : Fin 1) (Or.inl ?_)).trans (h r hr hlo)
    show r < 16 * t
    exact hlo
  · have hx : r - 16 * t < 16 := by omega
    refine (View.read_writes_cons_unit_of_mem b.view gb p4 _ [] _ (ix1 (⟨r - 16 * t, hx⟩ : Fin 16)) h4 ?_).trans ?_
    · intro a'
      match a' with
      | ⟨0, _⟩ => show r = 16 * t + (r - 16 * t); omega
    · rw [shapeCast_1a_a_apply, View.readAt_apply, idx_window h3 p3 ⟨r - 16 * t, hx⟩ (by show 16 * t + (r - 16 * t) < 3200; omega)]
      congr 2
      apply Fin.ext
      show 16 * t + (r - 16 * t) = r
      omega

theorem lanes_step (a : Memref sig .scVector .vmem S8x3200 .f32) (b : Memref sig .scVector .vmem S25600 .f32)
    (ga : Buf (Elt F) (a.view.loc (thr d L))) (gb : Buf (Elt F) (b.view.loc (thr d L)))
    (j : Fin k8_t2_loop.trips) (p3 : ∀ a', (k8_off3 j) a' + S1x16.size a' ≤ S8x3200.size a')
    (p4 : ∀ a', (k8_off4 j) a' + S16.size a' ≤ S25600.size a') (h : Lanes d L a b ga gb j.val) :
    Lanes d L a b ga (b.view.writes (Elt F) gb [⟨Rect.unit (s := S25600) (k8_off4 j) S16.size p4,
      k8_pay1 (a.view.readAt (Elt F) (Rect.unit (s := S8x3200) (k8_off3 j) S1x16.size p3).toLoadRect ga)⟩]) (j.val + 1) :=
  lanes_step_core d L a b ga gb j.val (k8_off3_eq j) (k8_off4_eq j) p3 p4 h

theorem lanes_step' (a : Memref sig .scVector .vmem S8x3200 .f32) (b : Memref sig .scVector .vmem S25600 .f32)
    (ga : Buf (Elt F) (a.view.loc (thr d L))) (gb : Buf (Elt F) (b.view.loc (thr d L)))
    (j : Fin k8_t3_loop.trips) (p3 : ∀ a', (k8_off8 j) a' + S1x16.size a' ≤ S8x3200.size a')
    (p4 : ∀ a', (k8_off9 j) a' + S16.size a' ≤ S25600.size a') (h : Lanes d L a b ga gb j.val) :
    Lanes d L a b ga (b.view.writes (Elt F) gb [⟨Rect.unit (s := S25600) (k8_off9 j) S16.size p4,
      k8_pay2 (a.view.readAt (Elt F) (Rect.unit (s := S8x3200) (k8_off8 j) S1x16.size p3).toLoadRect ga)⟩]) (j.val + 1) :=
  lanes_step_core d L a b ga gb j.val (k8_off8_eq j) (k8_off9_eq j) p3 p4 h

/-- Position `y` of the write-out window of the flat staging array is its element `y 0`. -/
theorem stg_emb (y : S3200.Idx) (hy : (y 0).val < 25600) :
    (Rect.unit (s := S25600) ![0] S3200.size inb_S25600_S3200_0).emb y = ix1 (⟨(y 0).val, hy⟩ : Fin 25600) := by
  funext a'; apply Fin.ext
  match a' with
  | ⟨0, _⟩ => show 0 + 1 * (y 0).val = (y 0).val; omega

/-- Position `(0, t)` of row 0 of the staging array is its element `(0, t)`. -/
theorem row_emb (t : Fin 3200) : rowRect.emb (ix2 (0 : Fin 1) t) = ix2 (0 : Fin 8) t := by
  funext a'; apply Fin.ext
  match a' with
  | ⟨0, _⟩ => show 0 + 1 * 0 = 0; omega
  | ⟨1, _⟩ => show 0 + 1 * t.val = t.val; omega

/-- Position `(0, t)` of piece `n` of the argument row is element `(0, pos + t)` of the transposed argument;
    position `y` of piece `n` of the result is element `pos + y 0` of the result. -/
theorem in_emb (n : ℕ) (t : Fin 3200) (h : pos L n + t.val < 1600000) :
    (inM L n).view.emb (ix2 (0 : Fin 1) t) = ix2 (8 : Fin 22) (⟨pos L n + t.val, h⟩ : Fin 1600000) := by
  funext a'; apply Fin.ext
  match a' with
  | ⟨0, _⟩ => show 8 + 1 * 0 = 8; omega
  | ⟨1, _⟩ => show pos L n + 1 * t.val = pos L n + t.val; omega

theorem out_emb (n : ℕ) (y : S3200.Idx) (h : pos L n + (y 0).val < 1600000) :
    (outM L n).view.emb y = ix1 (⟨pos L n + (y 0).val, h⟩ : Fin 1600000) := by
  funext a'; apply Fin.ext
  match a' with
  | ⟨0, _⟩ => show pos L n + 1 * (y 0).val = pos L n + (y 0).val; omega

/-- Both lane-copy loops run 200 trips: 200 · 16 = 3200, the whole row. -/
theorem trips2 : k8_t2_loop.trips = 200 := by decide
theorem trips3 : k8_t3_loop.trips = 200 := by decide

/-- After all its trips a lane-copy loop has copied the whole row. -/
theorem lanes_all (a : Memref sig .scVector .vmem S8x3200 .f32) (b : Memref sig .scVector .vmem S25600 .f32)
    (ga : Buf (Elt F) (a.view.loc (thr d L))) (gb : Buf (Elt F) (b.view.loc (thr d L)))
    (h : Lanes d L a b ga gb k8_t2_loop.trips) : Lanes d L a b ga gb 200 := trips2 ▸ h
theorem lanes_all' (a : Memref sig .scVector .vmem S8x3200 .f32) (b : Memref sig .scVector .vmem S25600 .f32)
    (ga : Buf (Elt F) (a.view.loc (thr d L))) (gb : Buf (Elt F) (b.view.loc (thr d L)))
    (h : Lanes d L a b ga gb k8_t3_loop.trips) : Lanes d L a b ga gb 200 := trips3 ▸ h

/-- The write-out of a piece: the first 3200 elements of the flat staging array, which the 200 lane copies filled from
    row 0 of the staging array, which the fetch filled from piece `n` of row 8 of the transposed argument, land at
    piece `n` of the result, at the same positions of the row. -/
theorem out_written (a : Memref sig .scVector .vmem S8x3200 .f32) (b : Memref sig .scVector .vmem S25600 .f32) (n : ℕ)
    (ga : Buf (Elt F) (a.view.loc (thr d L))) (gb : Buf (Elt F) (b.view.loc (thr d L)))
    (f0 : Buf (Elt F) ((outM L n).view.loc (thr d L))) (w : S3200.Idx → Elt F .f32)
    (hw : ∀ y, w y = (stg b).view.read (Elt F) gb y) (hl : Lanes d L a b ga gb 200) (hr : InRow d L fx a ga n) (hv : valid L n) :
    ∀ i ∈ (outM L n).view.set, ((outM L n).view.writes (Elt F) f0 [⟨Rect.whole _, w⟩]) i = Cert.Spec.row 8 fx i := by
  intro i hi
  obtain ⟨y, -, rfl⟩ := Finset.mem_map.mp hi
  have hy : (y 0).val < 3200 := (y 0).isLt
  have hp : pos L n + (y 0).val < 1600000 := by unfold pos; omega
  have e1 : (outM L n).view.writes (Elt F) f0 [⟨Rect.whole _, w⟩] ((outM L n).view.emb y) = w y := by
    have h := View.read_writes_cons_emb (outM L n).view f0 (Rect.whole _) w [] y
    rw [Rect.emb_whole_apply] at h
    exact (cast_eq _ _).symm.trans ((View.read_apply _ _).symm.trans h)
  have e2 : (stg b).view.read (Elt F) gb y = b.view.read (Elt F) gb (ix1 (⟨(y 0).val, by omega⟩ : Fin 25600)) :=
    congrArg (b.view.read (Elt F) gb) (stg_emb y (by omega))
  have e3 : a.view.read (Elt F) ga (ix2 (0 : Fin 8) (⟨(y 0).val, hy⟩ : Fin 3200))
      = (inM L n).view.read (Elt F) fx (ix2 (0 : Fin 1) (⟨(y 0).val, hy⟩ : Fin 3200)) :=
    (congrArg (a.view.read (Elt F) ga) (row_emb ⟨(y 0).val, hy⟩).symm).trans (hr _)
  have e4 : (inM L n).view.read (Elt F) fx (ix2 (0 : Fin 1) (⟨(y 0).val, hy⟩ : Fin 3200))
      = fx (ix2 (8 : Fin 22) (⟨pos L n + (y 0).val, hp⟩ : Fin 1600000)) :=
    ((View.read_apply _ _).trans (cast_eq _ _)).trans (congrArg fx (in_emb L n ⟨(y 0).val, hy⟩ hp))
  have e5 : Cert.Spec.row 8 fx ((outM L n).view.emb y) = fx (ix2 (8 : Fin 22) (⟨pos L n + (y 0).val, hp⟩ : Fin 1600000)) :=
    (congrArg (Cert.Spec.row 8 fx) (out_emb L n y hp)).trans (Cert.Spec.row_apply 8 fx _)
  exact e1.trans ((hw y).trans (e2.trans ((hl _ hy (by omega)).trans (e3.trans (e4.trans e5.symm)))))

end Cert.Proof.TileVal8

end
-- ==== Proof.TileK8.lean ====
/-
  One vector subcore's task of copy kernel 8 (counting from 0), run symbolically: the two fetch slots and two write-out slots
  between trips of the main loop (what each transfer in flight will hand back, and what the staging buffers hold), the
  invariant of the main loop and of the two lane-copy loops, and the task's run — from the tile's pieces of row 8 of
  the transposed argument and of the result to the same pieces with the result holding the row's elements.
-/
import proofs.«206869_g37898791420194_cont_8to1_b_558_20_alg».proof.Proof.TileK8Defs
import proofs.«206869_g37898791420194_cont_8to1_b_558_20_alg».proof.Proof.TileVal8
noncomputable section

namespace Cert.Proof.TileK8

open Cert.KernelIdeal Cert.KernelIdeal.Gen Cert.Proof.TileVal8
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 22) (Elt F) ℕ UU ℕ
local notation "xtW" => (Memref.whole Cert.KernelIdeal.main_v0_scv : Memref Cert.KernelIdeal.sig Kind.scVector Space.hbm Cert.KernelIdeal.S22x1600000 EltTy.f32)
local notation "oW" => (Memref.whole Cert.KernelIdeal.main_v9_scv : Memref Cert.KernelIdeal.sig Kind.scVector Space.hbm Cert.KernelIdeal.S1600000 EltTy.f32)
local notation "a4" => (Memref.whole Cert.KernelIdeal.cc8_scratch0 : Memref Cert.KernelIdeal.sig Kind.scVector Space.vmem Cert.KernelIdeal.S8x3200 EltTy.f32)
local notation "a5" => (Memref.whole Cert.KernelIdeal.cc8_scratch1 : Memref Cert.KernelIdeal.sig Kind.scVector Space.vmem Cert.KernelIdeal.S8x3200 EltTy.f32)
local notation "a6" => (Memref.whole Cert.KernelIdeal.cc8_scratch2 : Memref Cert.KernelIdeal.sig Kind.scVector Space.vmem Cert.KernelIdeal.S25600 EltTy.f32)
local notation "a7" => (Memref.whole Cert.KernelIdeal.cc8_scratch3 : Memref Cert.KernelIdeal.sig Kind.scVector Space.vmem Cert.KernelIdeal.S25600 EltTy.f32)

variable [FloatOps F]

section Tile

variable (d : Dev nD) (L : grid8.Coords)
variable (O : CellTallies nD τ sig (HIx 22)) (W : Waits sig (HIx 22))
variable (fx : Buf (Elt F) ((xtW).view.loc (thr d L)))

/-- Piece `n` of the result at its final contents. -/
abbrev oqPiece (n : ℕ) : sProp 𝕄 := (outM L n).view.loc (thr d L) ↦[(outM L n).view.set]{fullShare} (Cert.Spec.row 8 fx)
theorem oQ_pos {n : ℕ} (v : valid L n) : oQ d L fx n = oqPiece d L fx n := if_pos v
theorem oQ_neg {n : ℕ} (v : ¬ valid L n) : oQ d L fx n = iprop(emp) := if_neg v

/-- A fetch slot, remembering that the staging row it will hand back holds the piece. -/
def inSlotV (a : Memref sig .scVector .vmem S8x3200 .f32) (sm : DmaSem sig) (n : ℕ) : sProp 𝕄 :=
  if valid L n then
    iprop(∃ g, ⌜InRow d L fx a g n⌝ ∗ Transfers.Flight countersEmb (thr d L) (SemLoc.dma sm) (default : HIx 22) NN
      iprop((a.view.loc (thr d L) ↦{fullShare} g) ∗ xtPiece d L fx n))
  else iprop((∃ g, a.view.loc (thr d L) ↦{fullShare} g) ∗ semVal (thr d L, SemLoc.dma sm) 0)

/-- A write-out slot: the piece in flight will come back holding the row's elements. -/
def outSlotV (a : Memref sig .scVector .vmem S25600 .f32) (sm : DmaSem sig) (m : ℕ) : sProp 𝕄 :=
  if 2 ≤ m ∧ valid L (m - 2) then
    iprop(∃ g, Transfers.Flight countersEmb (thr d L) (SemLoc.dma sm) (default : HIx 22) NN
        iprop(oqPiece d L fx (m - 2) ∗ ((stg a).view.loc (thr d L) ↦[(stg a).view.set]{fullShare} g))
      ∗ (a.view.loc (thr d L) ↦[Finset.univ \ (stg a).view.set]{fullShare} g))
  else iprop((∃ g, a.view.loc (thr d L) ↦{fullShare} g) ∗ semVal (thr d L, SemLoc.dma sm) 0)

theorem inSlotV_pos {a : Memref sig .scVector .vmem S8x3200 .f32} {sm : DmaSem sig} {n : ℕ} (v : valid L n) :
    inSlotV d L fx a sm n = iprop(∃ g, ⌜InRow d L fx a g n⌝ ∗ Transfers.Flight countersEmb (thr d L) (SemLoc.dma sm) (default : HIx 22) NN
      iprop((a.view.loc (thr d L) ↦{fullShare} g) ∗ xtPiece d L fx n)) := by unfold inSlotV; rw [if_pos v]
theorem inSlotV_neg {a : Memref sig .scVector .vmem S8x3200 .f32} {sm : DmaSem sig} {n : ℕ} (v : ¬ valid L n) :
    inSlotV d L fx a sm n = iprop((∃ g, a.view.loc (thr d L) ↦{fullShare} g) ∗ semVal (thr d L, SemLoc.dma sm) 0) := by
  unfold inSlotV; rw [if_neg v]
theorem outSlotV_pos {a : Memref sig .scVector .vmem S25600 .f32} {sm : DmaSem sig} {m : ℕ} (h : 2 ≤ m ∧ valid L (m - 2)) :
    outSlotV d L fx a sm m = iprop(∃ g, Transfers.Flight countersEmb (thr d L) (SemLoc.dma sm) (default : HIx 22) NN
        iprop(oqPiece d L fx (m - 2) ∗ ((stg a).view.loc (thr d L) ↦[(stg a).view.set]{fullShare} g))
      ∗ (a.view.loc (thr d L) ↦[Finset.univ \ (stg a).view.set]{fullShare} g)) := by unfold outSlotV; rw [if_pos h]
theorem outSlotV_neg {a : Memref sig .scVector .vmem S25600 .f32} {sm : DmaSem sig} {m : ℕ} (h : ¬ (2 ≤ m ∧ valid L (m - 2))) :
    outSlotV d L fx a sm m = iprop((∃ g, a.view.loc (thr d L) ↦{fullShare} g) ∗ semVal (thr d L, SemLoc.dma sm) 0) := by
  unfold outSlotV; rw [if_neg h]

/-- A fetch just issued: the staging row will hold what the transfer reads, which is the piece. -/
theorem fl_inV {off : Fin 2 → ℕ} {n : ℕ} (h : off = ![8, pos L n]) (p : ∀ a, off a + S1x3200.size a ≤ S22x1600000.size a) (v : valid L n)
    (a : Memref sig .scVector .vmem S8x3200 .f32) (sm : DmaSem sig) :
    (iprop(∃ (gold : Buf (Elt F) (a.view.loc (thr d L))) (w : S1x3200.Idx → Elt F .f32),
        ⌜∀ y, w y = ((xtW).slice (Rect.unit (s := S22x1600000) off S1x3200.size p) (fun _ => rfl)).view.read (Elt F) fx y⌝
        ∗ Transfers.Flight countersEmb (thr d L) (SemLoc.dma sm) (default : HIx 22) NN
          iprop((a.view.loc (thr d L) ↦{fullShare} a.view.writes (Elt F) gold [⟨rowRect, w⟩])
            ∗ (((xtW).slice (Rect.unit (s := S22x1600000) off S1x3200.size p) (fun _ => rfl)).view.loc (thr d L)
                ↦[((xtW).slice (Rect.unit (s := S22x1600000) off S1x3200.size p) (fun _ => rfl)).view.set]{fullShare} fx))) : sProp 𝕄)
      ⊢ inSlotV d L fx a sm n := by
  subst h
  rw [inSlotV_pos d L fx v]
  iintro ⟨%gold, %w, %hw, H⟩
  iexists _
  isplitr
  · ipureintro; exact inRow_fetch d L fx a gold w n hw
  · iexact H

set_option maxHeartbeats 4000000 in
/-- A write-out just issued from a flat staging buffer whose first 3200 elements are the staging row, itself piece
    `n` of the argument row: the piece of the result will hold the row's elements. -/
theorem fl_outV {off : Fin 1 → ℕ} {n : ℕ} (h : off = ![pos L n]) (p : ∀ a, off a + S3200.size a ≤ S1600000.size a) (v : valid L n)
    (ar : Memref sig .scVector .vmem S8x3200 .f32) (a : Memref sig .scVector .vmem S25600 .f32) (sm : DmaSem sig)
    (f0 : Buf (Elt F) ((oW).view.loc (thr d L))) (ga : Buf (Elt F) (ar.view.loc (thr d L))) (gb : Buf (Elt F) (a.view.loc (thr d L)))
    (hl : Lanes d L ar a ga gb 200) (hr : InRow d L fx ar ga n) :
    (iprop(∃ (w : S3200.Idx → Elt F .f32),
        ⌜∀ y, w y = (stg a).view.read (Elt F) gb y⌝
        ∗ Transfers.Flight countersEmb (thr d L) (SemLoc.dma sm) (default : HIx 22) NN
          iprop((((oW).slice (Rect.unit (s := S1600000) off S3200.size p) (fun _ => rfl)).view.loc (thr d L)
                ↦[((oW).slice (Rect.unit (s := S1600000) off S3200.size p) (fun _ => rfl)).view.set]{fullShare}
                  (((oW).slice (Rect.unit (s := S1600000) off S3200.size p) (fun _ => rfl)).view.writes (Elt F) f0 [⟨Rect.whole _, w⟩]))
            ∗ ((stg a).view.loc (thr d L) ↦[(stg a).view.set]{fullShare} gb))
        ∗ (a.view.loc (thr d L) ↦[Finset.univ \ (stg a).view.set]{fullShare} gb)) : sProp 𝕄)
      ⊢ outSlotV d L fx a sm (n + 2) := by
  subst h
  rw [outSlotV_pos d L fx (m := n + 2) ⟨by omega, by simpa using v⟩]
  iintro ⟨%w, %hw, H, R⟩
  have hD : (iprop(((outM L n).view.loc (thr d L) ↦[(outM L n).view.set]{fullShare} ((outM L n).view.writes (Elt F) f0 [⟨Rect.whole _, w⟩]))
          ∗ ((stg a).view.loc (thr d L) ↦[(stg a).view.set]{fullShare} gb)) : sProp 𝕄)
      ⊢ iprop(oqPiece d L fx (n + 2 - 2) ∗ ((stg a).view.loc (thr d L) ↦[(stg a).view.set]{fullShare} gb)) := by
    rw [Nat.add_sub_cancel]
    have e : (((outM L n).view.loc (thr d L) ↦[(outM L n).view.set]{fullShare} ((outM L n).view.writes (Elt F) f0 [⟨Rect.whole _, w⟩])) : sProp 𝕄)
        = oqPiece d L fx n := pointsTo_congr (out_written d L fx ar a n ga gb f0 w hw hl hr v)
    iintro ⟨H1, H2⟩
    isplitl [H1]
    · iapply (Entails.of_eq e); iexact H1
    · iexact H2
  iexists gb
  isplitl [H]
  · iapply (Transfers.Flight_mono countersEmb (thr d L) hD); iexact H
  · iexact R

/-- The result pieces outside the slots before trip `t`: those already written hold the row, the others some contents. -/
def oMix (t n : ℕ) : sProp 𝕄 := if n + 2 < 2 * t then oQ d L fx n else oP (F := F) d L n
theorem oMix_lt {t n : ℕ} (h : n + 2 < 2 * t) : oMix d L fx t n = oQ d L fx n := if_pos h
theorem oMix_ge {t n : ℕ} (h : ¬ n + 2 < 2 * t) : oMix d L fx t n = oP (F := F) d L n := if_neg h
theorem oMix_core (k : ℕ) : bigSep (oCore k) (oMix d L fx k) = bigSep (oCore k) (oMix d L fx (k + 1)) :=
  bigSep_congr fun n hn => by
    have hn' : n + 2 ≠ 2 * k ∧ n + 2 ≠ 2 * k + 1 ∧ n ≠ 2 * k ∧ n ≠ 2 * k + 1 := by
      simp only [oCore, Finset.mem_filter, Finset.mem_range] at hn; exact hn.2
    by_cases h : n + 2 < 2 * k
    · rw [oMix_lt d L fx h, oMix_lt d L fx (by omega)]
    · rw [oMix_ge d L fx h, oMix_ge d L fx (by omega)]
theorem oMix_zero : bigSep (oSet 0) (oMix d L fx 0) = bigSep (Finset.range 18) (oP (F := F) d L) := by
  rw [oSet_zero]; exact bigSep_congr fun n _ => oMix_ge d L fx (by omega)
theorem oMix_end : bigSep (oSet 8) (oMix d L fx 8) = bigSep (oSet 8) (oQ d L fx) :=
  bigSep_congr fun n hn => by
    have hn' : n < 18 ∧ n + 2 ≠ 16 ∧ n + 2 ≠ 17 := by simpa only [oSet, Finset.mem_filter, Finset.mem_range] using hn
    by_cases h : n + 2 < 2 * 8
    · exact oMix_lt d L fx h
    · rw [oMix_ge d L fx h, oP_neg (F := F) d L (by unfold valid; omega), oQ_neg d L fx (by unfold valid; omega)]

/-- The lane-copy loops: before trip `j` the first 16·j elements of the flat staging buffer are the staging row's. -/
def laneV0 (g4 : Buf (Elt F) ((a4).view.loc (thr d L))) (j : ℕ) (_ : PUnit) : sProp 𝕄 :=
  iprop(((a4).view.loc (thr d L) ↦{fullShare} g4) ∗ (∃ g, ((a6).view.loc (thr d L) ↦{fullShare} g) ∗ ⌜Lanes d L a4 a6 g4 g j⌝))
def laneV1 (g5 : Buf (Elt F) ((a5).view.loc (thr d L))) (j : ℕ) (_ : PUnit) : sProp 𝕄 :=
  iprop(((a5).view.loc (thr d L) ↦{fullShare} g5) ∗ (∃ g, ((a7).view.loc (thr d L) ↦{fullShare} g) ∗ ⌜Lanes d L a5 a7 g5 g j⌝))

def invV (t : ℕ) (_ : PUnit) : sProp 𝕄 :=
  iprop(Transfers.MayWaits (thr d L) (none : HIx 22) O
    ∗ (∃ W', ⌜∀ p ∈ W', p ∈ W ∨ p.2 = none⌝ ∗ owes (thr d L) O W')
    ∗ bigSep (xSet t) (xP d L fx) ∗ bigSep (oSet t) (oMix d L fx t)
    ∗ inSlotV d L fx a4 cc8_scratch4.sem (2 * t) ∗ outSlotV d L fx a6 cc8_scratch6.sem (2 * t)
    ∗ inSlotV d L fx a5 cc8_scratch5.sem (2 * t + 1) ∗ outSlotV d L fx a7 cc8_scratch7.sem (2 * t + 1))

/-- After the last trip nothing of the argument row is in a slot: the tile holds all its pieces. -/
theorem xRange_end : bigSep (xSet 8) (xP d L fx) ⊢ bigSep (Finset.range 18) (xP d L fx) := by
  rw [two_out (s := Finset.range 18) (a := 16) (b := 17) (by decide) (by decide) (by decide),
    show ((Finset.range 18).erase 16).erase 17 = xSet 8 by decide]
  iintro H
  isplitr; · iapply (Entails.of_eq (xP_neg d L fx (n := 16) (by unfold valid; omega)).symm); iempintro
  isplitr; · iapply (Entails.of_eq (xP_neg d L fx (n := 17) (by unfold valid; omega)).symm); iempintro
  iexact H
omit [FloatOps F] in
theorem oRange_end (Φ : ℕ → sProp 𝕄) : bigSep (Finset.range 18) Φ = iprop(Φ 14 ∗ Φ 15 ∗ bigSep (oSet 8) Φ) := by
  rw [two_out (s := Finset.range 18) (a := 14) (b := 15) (by decide) (by decide) (by decide),
    show ((Finset.range 18).erase 14).erase 15 = oSet 8 by decide]

/-- What the run starts from and ends with, beside an untouched rest `R`. -/
def runPre (R : sProp 𝕄) : sProp 𝕄 :=
    iprop(Transfers.MayWaits (thr d L) (none : HIx 22) O ∗ owes (thr d L) O W
        ∗ bigSep (Finset.range 18) (xP d L fx) ∗ bigSep (Finset.range 18) (oP (F := F) d L)
        ∗ (∃ g, (a4).view.loc (thr d L) ↦{fullShare} g) ∗ (∃ g, (a5).view.loc (thr d L) ↦{fullShare} g)
        ∗ (∃ g, (a6).view.loc (thr d L) ↦{fullShare} g) ∗ (∃ g, (a7).view.loc (thr d L) ↦{fullShare} g)
        ∗ semVal (thr d L, SemLoc.dma cc8_scratch4.sem) 0 ∗ semVal (thr d L, SemLoc.dma cc8_scratch5.sem) 0
        ∗ semVal (thr d L, SemLoc.dma cc8_scratch6.sem) 0 ∗ semVal (thr d L, SemLoc.dma cc8_scratch7.sem) 0 ∗ R)
def runPost (R : sProp 𝕄) : sProp 𝕄 :=
    iprop(bigSep (Finset.range 18) (xP d L fx) ∗ bigSep (Finset.range 18) (oQ d L fx)
            ∗ (∃ g, (a4).view.loc (thr d L) ↦{fullShare} g) ∗ (∃ g, (a5).view.loc (thr d L) ↦{fullShare} g)
            ∗ (∃ g, (a6).view.loc (thr d L) ↦{fullShare} g) ∗ (∃ g, (a7).view.loc (thr d L) ↦{fullShare} g)
            ∗ semVal (thr d L, SemLoc.dma cc8_scratch4.sem) 0 ∗ semVal (thr d L, SemLoc.dma cc8_scratch5.sem) 0
            ∗ semVal (thr d L, SemLoc.dma cc8_scratch6.sem) 0 ∗ semVal (thr d L, SemLoc.dma cc8_scratch7.sem) 0
            ∗ (∃ W', ⌜∀ p ∈ W', p ∈ W ∨ p.2 = none⌝ ∗ owes (thr d L) O W') ∗ R)

set_option maxHeartbeats 16000000 in
/-- The task's run: from its pieces of the argument row and of the result, the four staging buffers and the four
    semaphores at zero, to the same with every piece of the result holding the row's elements. -/
theorem tile_run (R : sProp 𝕄) :
    runPre d L O W fx R
      ⊢ wp frame (wpE (defs₀ (F := F)) 𝒱₀ (thr d L) none) Set.univ
          (cc8_sc_group L xtW (Memref.isWhole_whole _) oW (Memref.isWhole_whole _) a4 (Memref.isWhole_whole _) a5 (Memref.isWhole_whole _)
            a6 (Memref.isWhole_whole _) a7 (Memref.isWhole_whole _) cc8_scratch4 cc8_scratch5 cc8_scratch6 cc8_scratch7)
          fun _ => runPost d L O W fx R := by
  unfold runPre runPost
  have v0 : valid L 0 := Or.inl (by omega)
  have v1 : valid L 1 := Or.inl (by omega)
  have k8_h7 : k8_cond7 L = 1#1 := cond7_iff L
  iintro ⟨#Hmw, HO, HX, HOut, ⟨%g4, H4⟩, ⟨%g5, H5⟩, ⟨%g6, H6⟩, ⟨%g7, H7⟩, Hs8, Hs9, Hs10, Hs11, HR⟩
  ihave HX := (Entails.of_eq (xRange_split d L fx v0 v1)) $$ HX
  icases HX with ⟨X0, X1, HX⟩
  ihave X0 := (Entails.of_eq (in_congr d L (off_in0 L v0).symm (in_inb L _) (k8_off1_inb L 0) fx)) $$ X0
  ihave X1 := (Entails.of_eq (in_congr d L (off_in1 L v1).symm (in_inb L _) (k8_off1_inb L 1) fx)) $$ X1
  sl_unfold [cc8_sc_group]
  sl_exec
  ihave S8 := (fl_inV d L fx (off_in0 L v0) (k8_off1_inb L 0) v0 a4 cc8_scratch4.sem) $$ [Hs8]
  · iexists _, _
    isplitr
    rotate_left
    · iexact Hs8
    ipureintro; intro y; rfl
  ihave S9 := (fl_inV d L fx (off_in1 L v1) (k8_off1_inb L 1) v1 a5 cc8_scratch5.sem) $$ [Hs9]
  · iexists _, _
    isplitr
    rotate_left
    · iexact Hs9
    ipureintro; intro y; rfl
  sl_for (invV d L O W fx) $$ [HO HX HOut S8 S9 H6 H7 Hs10 Hs11]
  case region =>
    intro (k : Fin k8_t1_loop.trips) acc
    have hk : k.val < 8 := Nat.lt_of_lt_of_eq k.isLt trips1
    unfold invV
    iintro ⟨#Hmw, ⟨%W', %hW', HO⟩, HX, HOut, S8, S10, S9, S11⟩
    by_cases hk1 : 1 ≤ k.val
    · by_cases v3 : valid L (2 * k.val + 3)
      · -- the generic trip: both drains, both pieces worked, both next fetches issued
        have hk6 : k.val ≤ 6 := by unfold valid at v3; omega
        have k8_h1 : k8_cond1 k = 1#1 := (cond1_iff k).mpr (by omega)
        have k8_h2 : k8_cond2 L k = 1#1 := cond2_iff L k
        have k8_h3 : k8_cond3 L k = 1#1 := (cond3_iff L k).mpr (by omega)
        have k8_h4 : k8_cond4 k = 1#1 := (cond4_iff k).mpr (by omega)
        have k8_h5 : k8_cond5 L k = 1#1 := (cond5_iff L k).mpr (by first | (unfold valid big at *; omega) | (unfold big at *; omega) | omega)
        have k8_h6 : k8_cond6 L k = 1#1 := (cond6_iff L k).mpr (by first | (unfold valid big at *; omega) | (unfold big at *; omega) | omega)
        have v0 : valid L (2 * k.val) := by unfold valid big at *; omega
        have v1 : valid L (2 * k.val + 1) := by unfold valid big at *; omega
        have v2 : valid L (2 * k.val + 2) := by unfold valid big at *; omega
        have v3' : valid L (2 * k.val + 3) := by unfold valid big at *; omega
        have hm0 : 2 ≤ 2 * k.val ∧ valid L (2 * k.val - 2) := ⟨by omega, by unfold valid big at *; omega⟩
        have hm1 : 2 ≤ 2 * k.val + 1 ∧ valid L (2 * k.val + 1 - 2) := ⟨by omega, by unfold valid big at *; omega⟩
        ihave S8 := (Entails.of_eq (inSlotV_pos d L fx v0)) $$ S8
        icases S8 with ⟨%g4, %hin4, F8⟩
        ihave S9 := (Entails.of_eq (inSlotV_pos d L fx v1)) $$ S9
        icases S9 with ⟨%g5, %hin5, F9⟩
        ihave S10 := (Entails.of_eq (outSlotV_pos d L fx hm0)) $$ S10
        icases S10 with ⟨%g6, F10, R6⟩
        ihave S11 := (Entails.of_eq (outSlotV_pos d L fx hm1)) $$ S11
        icases S11 with ⟨%g7, F11, R7⟩
        ihave HX := (Entails.of_eq (xSet_out (xP d L fx) k.val hk)) $$ HX
        icases HX with ⟨X2, X3, HX⟩
        ihave X2 := (Entails.of_eq (xP_pos d L fx v2)) $$ X2
        ihave X2 := (Entails.of_eq (in_congr d L (off_6 L k v2).symm (in_inb L _) (k8_off6_inb L k k8_h3) fx)) $$ X2
        ihave X3 := (Entails.of_eq (xP_pos d L fx v3')) $$ X3
        ihave X3 := (Entails.of_eq (in_congr d L (off_11 L k v3').symm (in_inb L _) (k8_off11_inb L k k8_h6) fx)) $$ X3
        ihave HOut := (Entails.of_eq (oSet_out (oMix d L fx k.val) k.val hk)) $$ HOut
        icases HOut with ⟨Y0, Y1, HOut⟩
        ihave Y0 := (Entails.of_eq ((oMix_ge d L fx (t := k.val) (n := 2 * k.val) (by omega)).trans (oP_pos (F := F) d L v0))) $$ Y0
        icases Y0 with ⟨%f0, Y0⟩
        ihave Y0 := (Entails.of_eq (out_congr d L (off_5 L k v0).symm (out_inb L _) (k8_off5_inb L k k8_h2) f0)) $$ Y0
        ihave Y1 := (Entails.of_eq ((oMix_ge d L fx (t := k.val) (n := 2 * k.val + 1) (by omega)).trans (oP_pos (F := F) d L v1))) $$ Y1
        icases Y1 with ⟨%f1, Y1⟩
        ihave Y1 := (Entails.of_eq (out_congr d L (off_10 L k v1).symm (out_inb L _) (k8_off10_inb L k k8_h5) f1)) $$ Y1
        sl_exec
        sl_for (laneV0 d L g4) $$ [F8_dst R6]
        case region =>
          intro (j : Fin k8_t2_loop.trips) _
          unfold laneV0
          iintro ⟨HA, %g, HB, %hl⟩
          sl_exec
          sl_step
          isplitl [HA]; · iexact HA
          iexists _; isplitl [HB]; · iexact HB
          ipureintro; exact lanes_step d L a4 a6 g4 g j _ _ hl
        · unfold laneV0
          isplitl [F8_dst]; · iexact F8_dst
          iexists _; isplitl [R6]; · iexact R6
          ipureintro; exact lanes_zero d L a4 a6 g4 _
        iintro %_ HI
        unfold laneV0
        icases HI with ⟨H4, %g6', H6, %hl6⟩
        have hl6 : Lanes d L a4 a6 g4 g6' 200 := Eq.mp (congrArg (Lanes d L a4 a6 g4 g6') trips2) hl6
        sl_exec
        sl_for (laneV1 d L g5) $$ [F9_dst R7]
        case region =>
          intro (j : Fin k8_t3_loop.trips) _
          unfold laneV1
          iintro ⟨HA, %g, HB, %hl⟩
          sl_exec
          sl_step
          isplitl [HA]; · iexact HA
          iexists _; isplitl [HB]; · iexact HB
          ipureintro; exact lanes_step' d L a5 a7 g5 g j _ _ hl
        · unfold laneV1
          isplitl [F9_dst]; · iexact F9_dst
          iexists _; isplitl [R7]; · iexact R7
          ipureintro; exact lanes_zero d L a5 a7 g5 _
        iintro %_ HI
        unfold laneV1
        icases HI with ⟨H5, %g7', H7, %hl7⟩
        have hl7 : Lanes d L a5 a7 g5 g7' 200 := Eq.mp (congrArg (Lanes d L a5 a7 g5 g7') trips3) hl7
        sl_exec
        sl_step
        isplitr; · iexact Hmw
        isplitl [HO]
        · iexists _; isplitr
          rotate_left
          · iexact HO
          ipureintro; intro p hp
          rcases Finset.mem_insert.mp hp with rfl | hp
          · exact .inr rfl
          rcases Finset.mem_insert.mp hp with rfl | hp
          · exact .inr rfl
          rcases Finset.mem_insert.mp hp with rfl | hp
          · exact .inr rfl
          rcases Finset.mem_insert.mp hp with rfl | hp
          · exact .inr rfl
          exact hW' p hp
        isplitl [HX F8_src F9_src]
        · iapply (Entails.of_eq (xSet_in (xP d L fx) k.val hk).symm)
          isplitl [F8_src]; · iapply (Entails.of_eq (xP_pos d L fx v0).symm); iexact F8_src
          isplitl [F9_src]; · iapply (Entails.of_eq (xP_pos d L fx v1).symm); iexact F9_src
          iexact HX
        isplitl [HOut F10_dst F11_dst]
        · iapply (Entails.of_eq (oSet_in (oMix d L fx (k.val + 1)) k.val hk (by omega)).symm)
          isplitl [F10_dst]; · iapply (Entails.of_eq ((oMix_lt d L fx (t := k.val + 1) (n := 2 * k.val - 2) (by omega)).trans (oQ_pos d L fx hm0.2)).symm); iexact F10_dst
          isplitl [F11_dst]
          · iapply (Entails.of_eq ((oMix_lt d L fx (t := k.val + 1) (n := 2 * k.val - 1) (by omega)).trans (oQ_pos d L fx (n := 2 * k.val - 1) (by have := hm1.2; rwa [show 2 * k.val + 1 - 2 = 2 * k.val - 1 by omega] at this))).symm)
            iapply (Entails.of_eq (congrArg (oqPiece d L fx) (show 2 * k.val + 1 - 2 = 2 * k.val - 1 by omega))); iexact F11_dst
          iapply (Entails.of_eq (oMix_core d L fx k.val)); iexact HOut
        isplitl [F8]
        · iapply (Entails.of_eq (congrArg (inSlotV d L fx a4 cc8_scratch4.sem) (show 2 * k.val + 2 = 2 * (k.val + 1) by ring)))
          iapply (fl_inV d L fx (off_6 L k v2) (k8_off6_inb L k k8_h3) v2 a4 cc8_scratch4.sem); iexists _, _
          isplitr
          rotate_left
          · iexact F8
          ipureintro; intro y; rfl
        isplitl [F10 H6]
        · iapply (Entails.of_eq (congrArg (outSlotV d L fx a6 cc8_scratch6.sem) (show 2 * k.val + 2 = 2 * (k.val + 1) by ring)))
          iapply (fl_outV d L fx (off_5 L k v0) (k8_off5_inb L k k8_h2) v0 a4 a6 cc8_scratch6.sem f0 g4 g6' hl6 hin4); iexists _
          isplitr
          rotate_left
          · isplitl [F10]; · iexact F10
            iexact H6
          ipureintro; intro y; rfl
        isplitl [F9]
        · iapply (Entails.of_eq (congrArg (inSlotV d L fx a5 cc8_scratch5.sem) (show 2 * k.val + 3 = 2 * (k.val + 1) + 1 by ring)))
          iapply (fl_inV d L fx (off_11 L k v3') (k8_off11_inb L k k8_h6) v3' a5 cc8_scratch5.sem); iexists _, _
          isplitr
          rotate_left
          · iexact F9
          ipureintro; intro y; rfl
        · iapply (Entails.of_eq (congrArg (outSlotV d L fx a7 cc8_scratch7.sem) (show 2 * k.val + 1 + 2 = 2 * (k.val + 1) + 1 by ring)))
          iapply (fl_outV d L fx (off_10 L k v1) (k8_off10_inb L k k8_h5) v1 a5 a7 cc8_scratch7.sem f1 g5 g7' hl7 hin5); iexists _
          isplitr
          rotate_left
          · isplitl [F11]; · iexact F11
            iexact H7
          ipureintro; intro y; rfl
      · by_cases h6 : k.val = 6
        · have hb : ¬ big L := fun hb => v3 (Or.inr ⟨by omega, hb⟩)
          -- trip 6 of a tile with fifteen pieces: no sixteenth piece to fetch
          have k8_h1 : k8_cond1 k = 1#1 := (cond1_iff k).mpr (by omega)
          have k8_h2 : k8_cond2 L k = 1#1 := cond2_iff L k
          have k8_h3 : k8_cond3 L k = 1#1 := (cond3_iff L k).mpr (by omega)
          have k8_h4 : k8_cond4 k = 1#1 := (cond4_iff k).mpr (by omega)
          have k8_h5 : k8_cond5 L k = 1#1 := (cond5_iff L k).mpr (by first | (unfold valid big at *; omega) | (unfold big at *; omega) | omega)
          have k8_h6 : ¬ k8_cond6 L k = 1#1 := fun h => absurd ((cond6_iff L k).mp h) (by first | (unfold valid big at *; omega) | (unfold big at *; omega) | omega)
          have v0 : valid L (2 * k.val) := by unfold valid big at *; omega
          have v1 : valid L (2 * k.val + 1) := by unfold valid big at *; omega
          have v2 : valid L (2 * k.val + 2) := by unfold valid big at *; omega
          have v3' : ¬ valid L (2 * k.val + 3) := by unfold valid big at *; omega
          have hm0 : 2 ≤ 2 * k.val ∧ valid L (2 * k.val - 2) := ⟨by omega, by unfold valid big at *; omega⟩
          have hm1 : 2 ≤ 2 * k.val + 1 ∧ valid L (2 * k.val + 1 - 2) := ⟨by omega, by unfold valid big at *; omega⟩
          ihave S8 := (Entails.of_eq (inSlotV_pos d L fx v0)) $$ S8
          icases S8 with ⟨%g4, %hin4, F8⟩
          ihave S9 := (Entails.of_eq (inSlotV_pos d L fx v1)) $$ S9
          icases S9 with ⟨%g5, %hin5, F9⟩
          ihave S10 := (Entails.of_eq (outSlotV_pos d L fx hm0)) $$ S10
          icases S10 with ⟨%g6, F10, R6⟩
          ihave S11 := (Entails.of_eq (outSlotV_pos d L fx hm1)) $$ S11
          icases S11 with ⟨%g7, F11, R7⟩
          ihave HX := (Entails.of_eq (xSet_out (xP d L fx) k.val hk)) $$ HX
          icases HX with ⟨X2, -, HX⟩
          ihave X2 := (Entails.of_eq (xP_pos d L fx v2)) $$ X2
          ihave X2 := (Entails.of_eq (in_congr d L (off_6 L k v2).symm (in_inb L _) (k8_off6_inb L k k8_h3) fx)) $$ X2
          ihave HOut := (Entails.of_eq (oSet_out (oMix d L fx k.val) k.val hk)) $$ HOut
          icases HOut with ⟨Y0, Y1, HOut⟩
          ihave Y0 := (Entails.of_eq ((oMix_ge d L fx (t := k.val) (n := 2 * k.val) (by omega)).trans (oP_pos (F := F) d L v0))) $$ Y0
          icases Y0 with ⟨%f0, Y0⟩
          ihave Y0 := (Entails.of_eq (out_congr d L (off_5 L k v0).symm (out_inb L _) (k8_off5_inb L k k8_h2) f0)) $$ Y0
          ihave Y1 := (Entails.of_eq ((oMix_ge d L fx (t := k.val) (n := 2 * k.val + 1) (by omega)).trans (oP_pos (F := F) d L v1))) $$ Y1
          icases Y1 with ⟨%f1, Y1⟩
          ihave Y1 := (Entails.of_eq (out_congr d L (off_10 L k v1).symm (out_inb L _) (k8_off10_inb L k k8_h5) f1)) $$ Y1
          sl_exec
          sl_for (laneV0 d L g4) $$ [F8_dst R6]
          case region =>
            intro (j : Fin k8_t2_loop.trips) _
            unfold laneV0
            iintro ⟨HA, %g, HB, %hl⟩
            sl_exec
            sl_step
            isplitl [HA]; · iexact HA
            iexists _; isplitl [HB]; · iexact HB
            ipureintro; exact lanes_step d L a4 a6 g4 g j _ _ hl
          · unfold laneV0
            isplitl [F8_dst]; · iexact F8_dst
            iexists _; isplitl [R6]; · iexact R6
            ipureintro; exact lanes_zero d L a4 a6 g4 _
          iintro %_ HI
          unfold laneV0
          icases HI with ⟨H4, %g6', H6, %hl6⟩
          have hl6 : Lanes d L a4 a6 g4 g6' 200 := Eq.mp (congrArg (Lanes d L a4 a6 g4 g6') trips2) hl6
          sl_exec
          sl_for (laneV1 d L g5) $$ [F9_dst R7]
          case region =>
            intro (j : Fin k8_t3_loop.trips) _
            unfold laneV1
            iintro ⟨HA, %g, HB, %hl⟩
            sl_exec
            sl_step
            isplitl [HA]; · iexact HA
            iexists _; isplitl [HB]; · iexact HB
            ipureintro; exact lanes_step' d L a5 a7 g5 g j _ _ hl
          · unfold laneV1
            isplitl [F9_dst]; · iexact F9_dst
            iexists _; isplitl [R7]; · iexact R7
            ipureintro; exact lanes_zero d L a5 a7 g5 _
          iintro %_ HI
          unfold laneV1
          icases HI with ⟨H5, %g7', H7, %hl7⟩
          have hl7 : Lanes d L a5 a7 g5 g7' 200 := Eq.mp (congrArg (Lanes d L a5 a7 g5 g7') trips3) hl7
          sl_exec
          sl_step
          isplitr; · iexact Hmw
          isplitl [HO]
          · iexists _; isplitr
            rotate_left
            · iexact HO
            ipureintro; intro p hp
            rcases Finset.mem_insert.mp hp with rfl | hp
            · exact .inr rfl
            rcases Finset.mem_insert.mp hp with rfl | hp
            · exact .inr rfl
            rcases Finset.mem_insert.mp hp with rfl | hp
            · exact .inr rfl
            rcases Finset.mem_insert.mp hp with rfl | hp
            · exact .inr rfl
            exact hW' p hp
          isplitl [HX F8_src F9_src]
          · iapply (Entails.of_eq (xSet_in (xP d L fx) k.val hk).symm)
            isplitl [F8_src]; · iapply (Entails.of_eq (xP_pos d L fx v0).symm); iexact F8_src
            isplitl [F9_src]; · iapply (Entails.of_eq (xP_pos d L fx v1).symm); iexact F9_src
            iexact HX
          isplitl [HOut F10_dst F11_dst]
          · iapply (Entails.of_eq (oSet_in (oMix d L fx (k.val + 1)) k.val hk (by omega)).symm)
            isplitl [F10_dst]; · iapply (Entails.of_eq ((oMix_lt d L fx (t := k.val + 1) (n := 2 * k.val - 2) (by omega)).trans (oQ_pos d L fx hm0.2)).symm); iexact F10_dst
            isplitl [F11_dst]
            · iapply (Entails.of_eq ((oMix_lt d L fx (t := k.val + 1) (n := 2 * k.val - 1) (by omega)).trans (oQ_pos d L fx (n := 2 * k.val - 1) (by have := hm1.2; rwa [show 2 * k.val + 1 - 2 = 2 * k.val - 1 by omega] at this))).symm)
              iapply (Entails.of_eq (congrArg (oqPiece d L fx) (show 2 * k.val + 1 - 2 = 2 * k.val - 1 by omega))); iexact F11_dst
            iapply (Entails.of_eq (oMix_core d L fx k.val)); iexact HOut
          isplitl [F8]
          · iapply (Entails.of_eq (congrArg (inSlotV d L fx a4 cc8_scratch4.sem) (show 2 * k.val + 2 = 2 * (k.val + 1) by ring)))
            iapply (fl_inV d L fx (off_6 L k v2) (k8_off6_inb L k k8_h3) v2 a4 cc8_scratch4.sem); iexists _, _
            isplitr
            rotate_left
            · iexact F8
            ipureintro; intro y; rfl
          isplitl [F10 H6]
          · iapply (Entails.of_eq (congrArg (outSlotV d L fx a6 cc8_scratch6.sem) (show 2 * k.val + 2 = 2 * (k.val + 1) by ring)))
            iapply (fl_outV d L fx (off_5 L k v0) (k8_off5_inb L k k8_h2) v0 a4 a6 cc8_scratch6.sem f0 g4 g6' hl6 hin4); iexists _
            isplitr
            rotate_left
            · isplitl [F10]; · iexact F10
              iexact H6
            ipureintro; intro y; rfl
          isplitl [H5 F9]
          · iapply (Entails.of_eq (congrArg (inSlotV d L fx a5 cc8_scratch5.sem) (show 2 * k.val + 3 = 2 * (k.val + 1) + 1 by ring)))
            iapply (Entails.of_eq (inSlotV_neg d L fx v3').symm)
            isplitl [H5]; · iexists _; iexact H5
            iexact F9
          · iapply (Entails.of_eq (congrArg (outSlotV d L fx a7 cc8_scratch7.sem) (show 2 * k.val + 1 + 2 = 2 * (k.val + 1) + 1 by ring)))
            iapply (fl_outV d L fx (off_10 L k v1) (k8_off10_inb L k k8_h5) v1 a5 a7 cc8_scratch7.sem f1 g5 g7' hl7 hin5); iexists _
            isplitr
            rotate_left
            · isplitl [F11]; · iexact F11
              iexact H7
            ipureintro; intro y; rfl
        · have h7 : k.val = 7 := by unfold valid at v3; omega
          by_cases hb : big L
          · -- the last trip of a tile with sixteen pieces: nothing more to fetch
            have k8_h1 : k8_cond1 k = 1#1 := (cond1_iff k).mpr (by omega)
            have k8_h2 : k8_cond2 L k = 1#1 := cond2_iff L k
            have k8_h3 : ¬ k8_cond3 L k = 1#1 := fun h => absurd ((cond3_iff L k).mp h) (by omega)
            have k8_h4 : k8_cond4 k = 1#1 := (cond4_iff k).mpr (by omega)
            have k8_h5 : k8_cond5 L k = 1#1 := (cond5_iff L k).mpr (by first | (unfold valid big at *; omega) | (unfold big at *; omega) | omega)
            have k8_h6 : ¬ k8_cond6 L k = 1#1 := fun h => absurd ((cond6_iff L k).mp h) (by first | (unfold valid big at *; omega) | (unfold big at *; omega) | omega)
            have v0 : valid L (2 * k.val) := by unfold valid big at *; omega
            have v1 : valid L (2 * k.val + 1) := by unfold valid big at *; omega
            have v2 : ¬ valid L (2 * k.val + 2) := by unfold valid big at *; omega
            have v3' : ¬ valid L (2 * k.val + 3) := by unfold valid big at *; omega
            have hm0 : 2 ≤ 2 * k.val ∧ valid L (2 * k.val - 2) := ⟨by omega, by unfold valid big at *; omega⟩
            have hm1 : 2 ≤ 2 * k.val + 1 ∧ valid L (2 * k.val + 1 - 2) := ⟨by omega, by unfold valid big at *; omega⟩
            ihave S8 := (Entails.of_eq (inSlotV_pos d L fx v0)) $$ S8
            icases S8 with ⟨%g4, %hin4, F8⟩
            ihave S9 := (Entails.of_eq (inSlotV_pos d L fx v1)) $$ S9
            icases S9 with ⟨%g5, %hin5, F9⟩
            ihave S10 := (Entails.of_eq (outSlotV_pos d L fx hm0)) $$ S10
            icases S10 with ⟨%g6, F10, R6⟩
            ihave S11 := (Entails.of_eq (outSlotV_pos d L fx hm1)) $$ S11
            icases S11 with ⟨%g7, F11, R7⟩
            ihave HX := (Entails.of_eq (xSet_out (xP d L fx) k.val hk)) $$ HX
            icases HX with ⟨-, -, HX⟩
            ihave HOut := (Entails.of_eq (oSet_out (oMix d L fx k.val) k.val hk)) $$ HOut
            icases HOut with ⟨Y0, Y1, HOut⟩
            ihave Y0 := (Entails.of_eq ((oMix_ge d L fx (t := k.val) (n := 2 * k.val) (by omega)).trans (oP_pos (F := F) d L v0))) $$ Y0
            icases Y0 with ⟨%f0, Y0⟩
            ihave Y0 := (Entails.of_eq (out_congr d L (off_5 L k v0).symm (out_inb L _) (k8_off5_inb L k k8_h2) f0)) $$ Y0
            ihave Y1 := (Entails.of_eq ((oMix_ge d L fx (t := k.val) (n := 2 * k.val + 1) (by omega)).trans (oP_pos (F := F) d L v1))) $$ Y1
            icases Y1 with ⟨%f1, Y1⟩
            ihave Y1 := (Entails.of_eq (out_congr d L (off_10 L k v1).symm (out_inb L _) (k8_off10_inb L k k8_h5) f1)) $$ Y1
            sl_exec
            sl_for (laneV0 d L g4) $$ [F8_dst R6]
            case region =>
              intro (j : Fin k8_t2_loop.trips) _
              unfold laneV0
              iintro ⟨HA, %g, HB, %hl⟩
              sl_exec
              sl_step
              isplitl [HA]; · iexact HA
              iexists _; isplitl [HB]; · iexact HB
              ipureintro; exact lanes_step d L a4 a6 g4 g j _ _ hl
            · unfold laneV0
              isplitl [F8_dst]; · iexact F8_dst
              iexists _; isplitl [R6]; · iexact R6
              ipureintro; exact lanes_zero d L a4 a6 g4 _
            iintro %_ HI
            unfold laneV0
            icases HI with ⟨H4, %g6', H6, %hl6⟩
            have hl6 : Lanes d L a4 a6 g4 g6' 200 := Eq.mp (congrArg (Lanes d L a4 a6 g4 g6') trips2) hl6
            sl_exec
            sl_for (laneV1 d L g5) $$ [F9_dst R7]
            case region =>
              intro (j : Fin k8_t3_loop.trips) _
              unfold laneV1
              iintro ⟨HA, %g, HB, %hl⟩
              sl_exec
              sl_step
              isplitl [HA]; · iexact HA
              iexists _; isplitl [HB]; · iexact HB
              ipureintro; exact lanes_step' d L a5 a7 g5 g j _ _ hl
            · unfold laneV1
              isplitl [F9_dst]; · iexact F9_dst
              iexists _; isplitl [R7]; · iexact R7
              ipureintro; exact lanes_zero d L a5 a7 g5 _
            iintro %_ HI
            unfold laneV1
            icases HI with ⟨H5, %g7', H7, %hl7⟩
            have hl7 : Lanes d L a5 a7 g5 g7' 200 := Eq.mp (congrArg (Lanes d L a5 a7 g5 g7') trips3) hl7
            sl_exec
            sl_step
            isplitr; · iexact Hmw
            isplitl [HO]
            · iexists _; isplitr
              rotate_left
              · iexact HO
              ipureintro; intro p hp
              rcases Finset.mem_insert.mp hp with rfl | hp
              · exact .inr rfl
              rcases Finset.mem_insert.mp hp with rfl | hp
              · exact .inr rfl
              rcases Finset.mem_insert.mp hp with rfl | hp
              · exact .inr rfl
              rcases Finset.mem_insert.mp hp with rfl | hp
              · exact .inr rfl
              exact hW' p hp
            isplitl [HX F8_src F9_src]
            · iapply (Entails.of_eq (xSet_in (xP d L fx) k.val hk).symm)
              isplitl [F8_src]; · iapply (Entails.of_eq (xP_pos d L fx v0).symm); iexact F8_src
              isplitl [F9_src]; · iapply (Entails.of_eq (xP_pos d L fx v1).symm); iexact F9_src
              iexact HX
            isplitl [HOut F10_dst F11_dst]
            · iapply (Entails.of_eq (oSet_in (oMix d L fx (k.val + 1)) k.val hk (by omega)).symm)
              isplitl [F10_dst]; · iapply (Entails.of_eq ((oMix_lt d L fx (t := k.val + 1) (n := 2 * k.val - 2) (by omega)).trans (oQ_pos d L fx hm0.2)).symm); iexact F10_dst
              isplitl [F11_dst]
              · iapply (Entails.of_eq ((oMix_lt d L fx (t := k.val + 1) (n := 2 * k.val - 1) (by omega)).trans (oQ_pos d L fx (n := 2 * k.val - 1) (by have := hm1.2; rwa [show 2 * k.val + 1 - 2 = 2 * k.val - 1 by omega] at this))).symm)
                iapply (Entails.of_eq (congrArg (oqPiece d L fx) (show 2 * k.val + 1 - 2 = 2 * k.val - 1 by omega))); iexact F11_dst
              iapply (Entails.of_eq (oMix_core d L fx k.val)); iexact HOut
            isplitl [H4 F8]
            · iapply (Entails.of_eq (congrArg (inSlotV d L fx a4 cc8_scratch4.sem) (show 2 * k.val + 2 = 2 * (k.val + 1) by ring)))
              iapply (Entails.of_eq (inSlotV_neg d L fx v2).symm)
              isplitl [H4]; · iexists _; iexact H4
              iexact F8
            isplitl [F10 H6]
            · iapply (Entails.of_eq (congrArg (outSlotV d L fx a6 cc8_scratch6.sem) (show 2 * k.val + 2 = 2 * (k.val + 1) by ring)))
              iapply (fl_outV d L fx (off_5 L k v0) (k8_off5_inb L k k8_h2) v0 a4 a6 cc8_scratch6.sem f0 g4 g6' hl6 hin4); iexists _
              isplitr
              rotate_left
              · isplitl [F10]; · iexact F10
                iexact H6
              ipureintro; intro y; rfl
            isplitl [H5 F9]
            · iapply (Entails.of_eq (congrArg (inSlotV d L fx a5 cc8_scratch5.sem) (show 2 * k.val + 3 = 2 * (k.val + 1) + 1 by ring)))
              iapply (Entails.of_eq (inSlotV_neg d L fx v3').symm)
              isplitl [H5]; · iexists _; iexact H5
              iexact F9
            · iapply (Entails.of_eq (congrArg (outSlotV d L fx a7 cc8_scratch7.sem) (show 2 * k.val + 1 + 2 = 2 * (k.val + 1) + 1 by ring)))
              iapply (fl_outV d L fx (off_10 L k v1) (k8_off10_inb L k k8_h5) v1 a5 a7 cc8_scratch7.sem f1 g5 g7' hl7 hin5); iexists _
              isplitr
              rotate_left
              · isplitl [F11]; · iexact F11
                iexact H7
              ipureintro; intro y; rfl
          · -- the last trip of a tile with fifteen pieces: the second slot only drains
            have k8_h1 : k8_cond1 k = 1#1 := (cond1_iff k).mpr (by omega)
            have k8_h2 : k8_cond2 L k = 1#1 := cond2_iff L k
            have k8_h3 : ¬ k8_cond3 L k = 1#1 := fun h => absurd ((cond3_iff L k).mp h) (by omega)
            have k8_h4 : k8_cond4 k = 1#1 := (cond4_iff k).mpr (by omega)
            have k8_h5 : ¬ k8_cond5 L k = 1#1 := fun h => absurd ((cond5_iff L k).mp h) (by first | (unfold valid big at *; omega) | (unfold big at *; omega) | omega)
            have k8_h6 : ¬ k8_cond6 L k = 1#1 := fun h => absurd ((cond6_iff L k).mp h) (by first | (unfold valid big at *; omega) | (unfold big at *; omega) | omega)
            have v0 : valid L (2 * k.val) := by unfold valid big at *; omega
            have v1 : ¬ valid L (2 * k.val + 1) := by unfold valid big at *; omega
            have v2 : ¬ valid L (2 * k.val + 2) := by unfold valid big at *; omega
            have v3' : ¬ valid L (2 * k.val + 3) := by unfold valid big at *; omega
            have hm0 : 2 ≤ 2 * k.val ∧ valid L (2 * k.val - 2) := ⟨by omega, by unfold valid big at *; omega⟩
            have hm1 : 2 ≤ 2 * k.val + 1 ∧ valid L (2 * k.val + 1 - 2) := ⟨by omega, by unfold valid big at *; omega⟩
            ihave S8 := (Entails.of_eq (inSlotV_pos d L fx v0)) $$ S8
            icases S8 with ⟨%g4, %hin4, F8⟩
            ihave S9 := (Entails.of_eq (inSlotV_neg d L fx v1)) $$ S9
            icases S9 with ⟨⟨%g5, H5⟩, F9⟩
            ihave S10 := (Entails.of_eq (outSlotV_pos d L fx hm0)) $$ S10
            icases S10 with ⟨%g6, F10, R6⟩
            ihave S11 := (Entails.of_eq (outSlotV_pos d L fx hm1)) $$ S11
            icases S11 with ⟨%g7, F11, R7⟩
            ihave HX := (Entails.of_eq (xSet_out (xP d L fx) k.val hk)) $$ HX
            icases HX with ⟨-, -, HX⟩
            ihave HOut := (Entails.of_eq (oSet_out (oMix d L fx k.val) k.val hk)) $$ HOut
            icases HOut with ⟨Y0, -, HOut⟩
            ihave Y0 := (Entails.of_eq ((oMix_ge d L fx (t := k.val) (n := 2 * k.val) (by omega)).trans (oP_pos (F := F) d L v0))) $$ Y0
            icases Y0 with ⟨%f0, Y0⟩
            ihave Y0 := (Entails.of_eq (out_congr d L (off_5 L k v0).symm (out_inb L _) (k8_off5_inb L k k8_h2) f0)) $$ Y0
            sl_exec
            sl_for (laneV0 d L g4) $$ [F8_dst R6]
            case region =>
              intro (j : Fin k8_t2_loop.trips) _
              unfold laneV0
              iintro ⟨HA, %g, HB, %hl⟩
              sl_exec
              sl_step
              isplitl [HA]; · iexact HA
              iexists _; isplitl [HB]; · iexact HB
              ipureintro; exact lanes_step d L a4 a6 g4 g j _ _ hl
            · unfold laneV0
              isplitl [F8_dst]; · iexact F8_dst
              iexists _; isplitl [R6]; · iexact R6
              ipureintro; exact lanes_zero d L a4 a6 g4 _
            iintro %_ HI
            unfold laneV0
            icases HI with ⟨H4, %g6', H6, %hl6⟩
            have hl6 : Lanes d L a4 a6 g4 g6' 200 := Eq.mp (congrArg (Lanes d L a4 a6 g4 g6') trips2) hl6
            sl_exec
            sl_step
            isplitr; · iexact Hmw
            isplitl [HO]
            · iexists _; isplitr
              rotate_left
              · iexact HO
              ipureintro; intro p hp
              rcases Finset.mem_insert.mp hp with rfl | hp
              · exact .inr rfl
              rcases Finset.mem_insert.mp hp with rfl | hp
              · exact .inr rfl
              rcases Finset.mem_insert.mp hp with rfl | hp
              · exact .inr rfl
              exact hW' p hp
            isplitl [HX F8_src]
            · iapply (Entails.of_eq (xSet_in (xP d L fx) k.val hk).symm)
              isplitl [F8_src]; · iapply (Entails.of_eq (xP_pos d L fx v0).symm); iexact F8_src
              isplitr; · iapply (Entails.of_eq (xP_neg d L fx v1).symm); iempintro
              iexact HX
            isplitl [HOut F10_dst F11_dst]
            · iapply (Entails.of_eq (oSet_in (oMix d L fx (k.val + 1)) k.val hk (by omega)).symm)
              isplitl [F10_dst]; · iapply (Entails.of_eq ((oMix_lt d L fx (t := k.val + 1) (n := 2 * k.val - 2) (by omega)).trans (oQ_pos d L fx hm0.2)).symm); iexact F10_dst
              isplitl [F11_dst]
              · iapply (Entails.of_eq ((oMix_lt d L fx (t := k.val + 1) (n := 2 * k.val - 1) (by omega)).trans (oQ_pos d L fx (n := 2 * k.val - 1) (by have := hm1.2; rwa [show 2 * k.val + 1 - 2 = 2 * k.val - 1 by omega] at this))).symm)
                iapply (Entails.of_eq (congrArg (oqPiece d L fx) (show 2 * k.val + 1 - 2 = 2 * k.val - 1 by omega))); iexact F11_dst
              iapply (Entails.of_eq (oMix_core d L fx k.val)); iexact HOut
            isplitl [H4 F8]
            · iapply (Entails.of_eq (congrArg (inSlotV d L fx a4 cc8_scratch4.sem) (show 2 * k.val + 2 = 2 * (k.val + 1) by ring)))
              iapply (Entails.of_eq (inSlotV_neg d L fx v2).symm)
              isplitl [H4]; · iexists _; iexact H4
              iexact F8
            isplitl [F10 H6]
            · iapply (Entails.of_eq (congrArg (outSlotV d L fx a6 cc8_scratch6.sem) (show 2 * k.val + 2 = 2 * (k.val + 1) by ring)))
              iapply (fl_outV d L fx (off_5 L k v0) (k8_off5_inb L k k8_h2) v0 a4 a6 cc8_scratch6.sem f0 g4 g6' hl6 hin4); iexists _
              isplitr
              rotate_left
              · isplitl [F10]; · iexact F10
                iexact H6
              ipureintro; intro y; rfl
            isplitl [H5 F9]
            · iapply (Entails.of_eq (congrArg (inSlotV d L fx a5 cc8_scratch5.sem) (show 2 * k.val + 3 = 2 * (k.val + 1) + 1 by ring)))
              iapply (Entails.of_eq (inSlotV_neg d L fx v3').symm)
              isplitl [H5]; · iexists _; iexact H5
              iexact F9
            · iapply (Entails.of_eq (outSlotV_neg d L fx (m := 2 * (k.val + 1) + 1) (by intro h; apply v1; have := h.2; rwa [show 2 * (k.val + 1) + 1 - 2 = 2 * k.val + 1 by omega] at this)).symm)
              isplitl [R7]; · iexists _; iexact R7
              iexact F11
    · have hk0 : k.val = 0 := by omega
      -- the first trip: nothing to drain
      have k8_h1 : ¬ k8_cond1 k = 1#1 := fun h => absurd ((cond1_iff k).mp h) (by omega)
      have k8_h2 : k8_cond2 L k = 1#1 := cond2_iff L k
      have k8_h3 : k8_cond3 L k = 1#1 := (cond3_iff L k).mpr (by omega)
      have k8_h4 : ¬ k8_cond4 k = 1#1 := fun h => absurd ((cond4_iff k).mp h) (by omega)
      have k8_h5 : k8_cond5 L k = 1#1 := (cond5_iff L k).mpr (by first | (unfold valid big at *; omega) | (unfold big at *; omega) | omega)
      have k8_h6 : k8_cond6 L k = 1#1 := (cond6_iff L k).mpr (by first | (unfold valid big at *; omega) | (unfold big at *; omega) | omega)
      have v0 : valid L (2 * k.val) := by unfold valid big at *; omega
      have v1 : valid L (2 * k.val + 1) := by unfold valid big at *; omega
      have v2 : valid L (2 * k.val + 2) := by unfold valid big at *; omega
      have v3' : valid L (2 * k.val + 3) := by unfold valid big at *; omega
      have hm0 : ¬ (2 ≤ 2 * k.val ∧ valid L (2 * k.val - 2)) := by omega
      have hm1 : ¬ (2 ≤ 2 * k.val + 1 ∧ valid L (2 * k.val + 1 - 2)) := by omega
      ihave S8 := (Entails.of_eq (inSlotV_pos d L fx v0)) $$ S8
      icases S8 with ⟨%g4, %hin4, F8⟩
      ihave S9 := (Entails.of_eq (inSlotV_pos d L fx v1)) $$ S9
      icases S9 with ⟨%g5, %hin5, F9⟩
      ihave S10 := (Entails.of_eq (outSlotV_neg d L fx hm0)) $$ S10
      icases S10 with ⟨⟨%g6, R6⟩, F10⟩
      ihave S11 := (Entails.of_eq (outSlotV_neg d L fx hm1)) $$ S11
      icases S11 with ⟨⟨%g7, R7⟩, F11⟩
      ihave HX := (Entails.of_eq (xSet_out (xP d L fx) k.val hk)) $$ HX
      icases HX with ⟨X2, X3, HX⟩
      ihave X2 := (Entails.of_eq (xP_pos d L fx v2)) $$ X2
      ihave X2 := (Entails.of_eq (in_congr d L (off_6 L k v2).symm (in_inb L _) (k8_off6_inb L k k8_h3) fx)) $$ X2
      ihave X3 := (Entails.of_eq (xP_pos d L fx v3')) $$ X3
      ihave X3 := (Entails.of_eq (in_congr d L (off_11 L k v3').symm (in_inb L _) (k8_off11_inb L k k8_h6) fx)) $$ X3
      ihave HOut := (Entails.of_eq (oSet_out (oMix d L fx k.val) k.val hk)) $$ HOut
      icases HOut with ⟨Y0, Y1, HOut⟩
      ihave Y0 := (Entails.of_eq ((oMix_ge d L fx (t := k.val) (n := 2 * k.val) (by omega)).trans (oP_pos (F := F) d L v0))) $$ Y0
      icases Y0 with ⟨%f0, Y0⟩
      ihave Y0 := (Entails.of_eq (out_congr d L (off_5 L k v0).symm (out_inb L _) (k8_off5_inb L k k8_h2) f0)) $$ Y0
      ihave Y1 := (Entails.of_eq ((oMix_ge d L fx (t := k.val) (n := 2 * k.val + 1) (by omega)).trans (oP_pos (F := F) d L v1))) $$ Y1
      icases Y1 with ⟨%f1, Y1⟩
      ihave Y1 := (Entails.of_eq (out_congr d L (off_10 L k v1).symm (out_inb L _) (k8_off10_inb L k k8_h5) f1)) $$ Y1
      sl_exec
      sl_for (laneV0 d L g4) $$ [F8_dst R6]
      case region =>
        intro (j : Fin k8_t2_loop.trips) _
        unfold laneV0
        iintro ⟨HA, %g, HB, %hl⟩
        sl_exec
        sl_step
        isplitl [HA]; · iexact HA
        iexists _; isplitl [HB]; · iexact HB
        ipureintro; exact lanes_step d L a4 a6 g4 g j _ _ hl
      · unfold laneV0
        isplitl [F8_dst]; · iexact F8_dst
        iexists _; isplitl [R6]; · iexact R6
        ipureintro; exact lanes_zero d L a4 a6 g4 _
      iintro %_ HI
      unfold laneV0
      icases HI with ⟨H4, %g6', H6, %hl6⟩
      have hl6 : Lanes d L a4 a6 g4 g6' 200 := Eq.mp (congrArg (Lanes d L a4 a6 g4 g6') trips2) hl6
      sl_exec
      sl_for (laneV1 d L g5) $$ [F9_dst R7]
      case region =>
        intro (j : Fin k8_t3_loop.trips) _
        unfold laneV1
        iintro ⟨HA, %g, HB, %hl⟩
        sl_exec
        sl_step
        isplitl [HA]; · iexact HA
        iexists _; isplitl [HB]; · iexact HB
        ipureintro; exact lanes_step' d L a5 a7 g5 g j _ _ hl
      · unfold laneV1
        isplitl [F9_dst]; · iexact F9_dst
        iexists _; isplitl [R7]; · iexact R7
        ipureintro; exact lanes_zero d L a5 a7 g5 _
      iintro %_ HI
      unfold laneV1
      icases HI with ⟨H5, %g7', H7, %hl7⟩
      have hl7 : Lanes d L a5 a7 g5 g7' 200 := Eq.mp (congrArg (Lanes d L a5 a7 g5 g7') trips3) hl7
      sl_exec
      sl_step
      isplitr; · iexact Hmw
      isplitl [HO]
      · iexists _; isplitr
        rotate_left
        · iexact HO
        ipureintro; intro p hp
        rcases Finset.mem_insert.mp hp with rfl | hp
        · exact .inr rfl
        rcases Finset.mem_insert.mp hp with rfl | hp
        · exact .inr rfl
        exact hW' p hp
      isplitl [HX F8_src F9_src]
      · iapply (Entails.of_eq (xSet_in (xP d L fx) k.val hk).symm)
        isplitl [F8_src]; · iapply (Entails.of_eq (xP_pos d L fx v0).symm); iexact F8_src
        isplitl [F9_src]; · iapply (Entails.of_eq (xP_pos d L fx v1).symm); iexact F9_src
        iexact HX
      isplitl [HOut]
      · iapply (Entails.of_eq (congrArg (fun s => bigSep s (oMix d L fx (k.val + 1))) (show oCore k.val = oSet (k.val + 1) by rw [hk0]; decide)))
        iapply (Entails.of_eq (oMix_core d L fx k.val)); iexact HOut
      isplitl [F8]
      · iapply (Entails.of_eq (congrArg (inSlotV d L fx a4 cc8_scratch4.sem) (show 2 * k.val + 2 = 2 * (k.val + 1) by ring)))
        iapply (fl_inV d L fx (off_6 L k v2) (k8_off6_inb L k k8_h3) v2 a4 cc8_scratch4.sem); iexists _, _
        isplitr
        rotate_left
        · iexact F8
        ipureintro; intro y; rfl
      isplitl [F10 H6]
      · iapply (Entails.of_eq (congrArg (outSlotV d L fx a6 cc8_scratch6.sem) (show 2 * k.val + 2 = 2 * (k.val + 1) by ring)))
        iapply (fl_outV d L fx (off_5 L k v0) (k8_off5_inb L k k8_h2) v0 a4 a6 cc8_scratch6.sem f0 g4 g6' hl6 hin4); iexists _
        isplitr
        rotate_left
        · isplitl [F10]; · iexact F10
          iexact H6
        ipureintro; intro y; rfl
      isplitl [F9]
      · iapply (Entails.of_eq (congrArg (inSlotV d L fx a5 cc8_scratch5.sem) (show 2 * k.val + 3 = 2 * (k.val + 1) + 1 by ring)))
        iapply (fl_inV d L fx (off_11 L k v3') (k8_off11_inb L k k8_h6) v3' a5 cc8_scratch5.sem); iexists _, _
        isplitr
        rotate_left
        · iexact F9
        ipureintro; intro y; rfl
      · iapply (Entails.of_eq (congrArg (outSlotV d L fx a7 cc8_scratch7.sem) (show 2 * k.val + 1 + 2 = 2 * (k.val + 1) + 1 by ring)))
        iapply (fl_outV d L fx (off_10 L k v1) (k8_off10_inb L k k8_h5) v1 a5 a7 cc8_scratch7.sem f1 g5 g7' hl7 hin5); iexists _
        isplitr
        rotate_left
        · isplitl [F11]; · iexact F11
          iexact H7
        ipureintro; intro y; rfl
  · unfold invV
    isplitr; · iexact Hmw
    isplitl [HO]
    · iexists W; isplitr
      · ipureintro; exact fun p hp => .inl hp
      · iexact HO
    isplitl [HX]; · iexact HX
    isplitl [HOut]; · iapply (Entails.of_eq (oMix_zero d L fx).symm); iexact HOut
    isplitl [S8]; · iexact S8
    isplitl [H6 Hs10]
    · rw [outSlotV_neg d L fx (by omega)]; isplitl [H6]; · iexists _; iexact H6
      iexact Hs10
    isplitl [S9]; · iexact S9
    rw [outSlotV_neg d L fx (by omega)]; isplitl [H7]; · iexists _; iexact H7
    iexact Hs11
  iintro %acc' HI
  ihave HI := (Entails.of_eq (congrArg (fun t => invV d L O W fx t acc') trips1)) $$ HI
  unfold invV
  icases HI with ⟨-, ⟨%W', %hW', HO⟩, HX, HOut, S8, S10, S9, S11⟩
  have nv16 : ¬ valid L (2 * 8) := by unfold valid; omega
  have nv17 : ¬ valid L (2 * 8 + 1) := by unfold valid; omega
  have hm14 : 2 ≤ 2 * 8 ∧ valid L (2 * 8 - 2) := ⟨by omega, Or.inl (by omega)⟩
  ihave S8 := (Entails.of_eq (inSlotV_neg d L fx nv16)) $$ S8
  icases S8 with ⟨⟨%g4', H4⟩, Hs8⟩
  ihave S9 := (Entails.of_eq (inSlotV_neg d L fx nv17)) $$ S9
  icases S9 with ⟨⟨%g5', H5⟩, Hs9⟩
  ihave S10 := (Entails.of_eq (outSlotV_pos d L fx hm14)) $$ S10
  icases S10 with ⟨%g6', F10, R6⟩
  by_cases hb : big L
  · have k8_h8 : k8_cond8 L = 1#1 := (cond8_iff L).mpr hb
    have hm15 : 2 ≤ 2 * 8 + 1 ∧ valid L (2 * 8 + 1 - 2) := ⟨by omega, Or.inr ⟨by omega, hb⟩⟩
    ihave S11 := (Entails.of_eq (outSlotV_pos d L fx hm15)) $$ S11
    icases S11 with ⟨%g7', F11, R7⟩
    sl_exec
    sl_step
    isplitl [HX]; · iapply (xRange_end d L fx); iexact HX
    isplitl [HOut F10_dst F11_dst]
    · iapply (Entails.of_eq (oRange_end (oQ d L fx)).symm)
      isplitl [F10_dst]; · iapply (Entails.of_eq (oQ_pos d L fx hm14.2).symm); iexact F10_dst
      isplitl [F11_dst]; · iapply (Entails.of_eq (oQ_pos d L fx hm15.2).symm); iexact F11_dst
      iapply (Entails.of_eq (oMix_end d L fx)); iexact HOut
    isplitl [H4]; · iexists _; iexact H4
    isplitl [H5]; · iexists _; iexact H5
    isplitl [R6]; · iexists _; iexact R6
    isplitl [R7]; · iexists _; iexact R7
    isplitl [Hs8]; · iexact Hs8
    isplitl [Hs9]; · iexact Hs9
    isplitl [F10]; · iexact F10
    isplitl [F11]; · iexact F11
    isplitl [HO]
    · iexists _; isplitr
      rotate_left
      · iexact HO
      ipureintro; intro p hp
      rcases Finset.mem_insert.mp hp with rfl | hp
      · exact .inr rfl
      rcases Finset.mem_insert.mp hp with rfl | hp
      · exact .inr rfl
      exact hW' p hp
    iexact HR
  · have k8_h8 : ¬ k8_cond8 L = 1#1 := fun h => hb ((cond8_iff L).mp h)
    have hm15 : ¬ (2 ≤ 2 * 8 + 1 ∧ valid L (2 * 8 + 1 - 2)) := by intro h; have := h.2; unfold valid at this; omega
    ihave S11 := (Entails.of_eq (outSlotV_neg d L fx hm15)) $$ S11
    icases S11 with ⟨⟨%g7', R7⟩, F11⟩
    sl_exec
    sl_step
    isplitl [HX]; · iapply (xRange_end d L fx); iexact HX
    isplitl [HOut F10_dst]
    · iapply (Entails.of_eq (oRange_end (oQ d L fx)).symm)
      isplitl [F10_dst]; · iapply (Entails.of_eq (oQ_pos d L fx hm14.2).symm); iexact F10_dst
      isplitr; · iapply (Entails.of_eq (oQ_neg d L fx (n := 15) (by unfold valid; omega)).symm); iempintro
      iapply (Entails.of_eq (oMix_end d L fx)); iexact HOut
    isplitl [H4]; · iexists _; iexact H4
    isplitl [H5]; · iexists _; iexact H5
    isplitl [R6]; · iexists _; iexact R6
    isplitl [R7]; · iexists _; iexact R7
    isplitl [Hs8]; · iexact Hs8
    isplitl [Hs9]; · iexact Hs9
    isplitl [F10]; · iexact F10
    isplitl [F11]; · iexact F11
    isplitl [HO]
    · iexists _; isplitr
      rotate_left
      · iexact HO
      ipureintro; intro p hp
      rcases Finset.mem_insert.mp hp with rfl | hp
      · exact .inr rfl
      exact hW' p hp
    iexact HR

/-! The subcore's scoped storage: the four staging buffers and the four semaphores of this call, and the rest. -/

abbrev c8 : GSem nD τ sig := (thr d L, SemLoc.dma cc8_scratch4.sem)
abbrev c9 : GSem nD τ sig := (thr d L, SemLoc.dma cc8_scratch5.sem)
abbrev c10 : GSem nD τ sig := (thr d L, SemLoc.dma cc8_scratch6.sem)
abbrev c11 : GSem nD τ sig := (thr d L, SemLoc.dma cc8_scratch7.sem)

omit [FloatOps F] in
theorem ownSems0_V :
    (ownSems0 (thr d L) : sProp 𝕄)
      = iprop(semVal (c8 d L) 0 ∗ semVal (c9 d L) 0 ∗ semVal (c10 d L) 0 ∗ semVal (c11 d L) 0
          ∗ bigSep (((((ownCells (thr d L)).erase (c8 d L)).erase (c9 d L)).erase (c10 d L)).erase (c11 d L)) fun g => semVal g 0) := by
  unfold SparseCore.Cfg.ownSems0
  rw [SparseCore.bigSep_erase' ((mem_ownCells (g := c8 d L)).mpr ⟨rfl, by
      show (SemLoc.dma cc8_scratch4.sem : SemLoc sig).isScoped .scVector = true; decide⟩),
    SparseCore.bigSep_erase' (Finset.mem_erase.mpr ⟨fun e => absurd (Prod.mk.inj e).2 (by decide), (mem_ownCells (g := c9 d L)).mpr ⟨rfl, by
      show (SemLoc.dma cc8_scratch5.sem : SemLoc sig).isScoped .scVector = true; decide⟩⟩),
    SparseCore.bigSep_erase' (Finset.mem_erase.mpr ⟨fun e => absurd (Prod.mk.inj e).2 (by decide), Finset.mem_erase.mpr ⟨fun e => absurd (Prod.mk.inj e).2 (by decide),
      (mem_ownCells (g := c10 d L)).mpr ⟨rfl, by show (SemLoc.dma cc8_scratch6.sem : SemLoc sig).isScoped .scVector = true; decide⟩⟩⟩),
    SparseCore.bigSep_erase' (Finset.mem_erase.mpr ⟨fun e => absurd (Prod.mk.inj e).2 (by decide), Finset.mem_erase.mpr ⟨fun e => absurd (Prod.mk.inj e).2 (by decide),
      Finset.mem_erase.mpr ⟨fun e => absurd (Prod.mk.inj e).2 (by decide),
      (mem_ownCells (g := c11 d L)).mpr ⟨rfl, by show (SemLoc.dma cc8_scratch7.sem : SemLoc sig).isScoped .scVector = true; decide⟩⟩⟩⟩)]

abbrev pV (L : grid8.Coords) : Proc τ := Proc.scVector (cV L) (jV L)

omit [FloatOps F] in
theorem ownBufs_V :
    (ownBufs (thr d L) : sProp 𝕄)
      = iprop((∃ f, (thr d L).loc cc8_scratch0 ↦{fullShare} f) ∗ (∃ f, (thr d L).loc cc8_scratch1 ↦{fullShare} f)
          ∗ (∃ f, (thr d L).loc cc8_scratch2 ↦{fullShare} f) ∗ (∃ f, (thr d L).loc cc8_scratch3 ↦{fullShare} f)
          ∗ bigSep (((((ownRefs (τ := τ) (pV L)).erase ((pV L).devRef cc8_scratch0)).erase ((pV L).devRef cc8_scratch1)).erase
              ((pV L).devRef cc8_scratch2)).erase ((pV L).devRef cc8_scratch3))
              fun b => iprop(∃ f, ((d, b) : Loc nD τ sig) ↦{fullShare} f)) := by
  unfold SparseCore.Cfg.ownBufs
  refine (SparseCore.bigSep_erase' (SparseCore.Cfg.mem_ownRefs_of_owner (p := pV L) (b := (pV L).devRef cc8_scratch0) rfl)).trans ?_
  rw [SparseCore.bigSep_erase' (Finset.mem_erase.mpr ⟨fun e => absurd (Proc.devRef_injective _ e) (show (cc8_scratch1 : Ref sig .scVector) ≠ cc8_scratch0 by decide),
      SparseCore.Cfg.mem_ownRefs_of_owner (p := pV L) (b := (pV L).devRef cc8_scratch1) rfl⟩),
    SparseCore.bigSep_erase' (Finset.mem_erase.mpr ⟨fun e => absurd (Proc.devRef_injective _ e) (show (cc8_scratch2 : Ref sig .scVector) ≠ cc8_scratch1 by decide),
      Finset.mem_erase.mpr ⟨fun e => absurd (Proc.devRef_injective _ e) (show (cc8_scratch2 : Ref sig .scVector) ≠ cc8_scratch0 by decide),
      SparseCore.Cfg.mem_ownRefs_of_owner (p := pV L) (b := (pV L).devRef cc8_scratch2) rfl⟩⟩),
    SparseCore.bigSep_erase' (Finset.mem_erase.mpr ⟨fun e => absurd (Proc.devRef_injective _ e) (show (cc8_scratch3 : Ref sig .scVector) ≠ cc8_scratch2 by decide),
      Finset.mem_erase.mpr ⟨fun e => absurd (Proc.devRef_injective _ e) (show (cc8_scratch3 : Ref sig .scVector) ≠ cc8_scratch1 by decide),
      Finset.mem_erase.mpr ⟨fun e => absurd (Proc.devRef_injective _ e) (show (cc8_scratch3 : Ref sig .scVector) ≠ cc8_scratch0 by decide),
      SparseCore.Cfg.mem_ownRefs_of_owner (p := pV L) (b := (pV L).devRef cc8_scratch3) rfl⟩⟩⟩)]

/-- The rest of the subcore's scoped storage, which the task does not touch. -/
def restR : sProp 𝕄 :=
  iprop((bigSep (((((ownRefs (τ := τ) (pV L)).erase ((pV L).devRef cc8_scratch0)).erase ((pV L).devRef cc8_scratch1)).erase
              ((pV L).devRef cc8_scratch2)).erase ((pV L).devRef cc8_scratch3))
              fun b => iprop(∃ f, ((d, b) : Loc nD τ sig) ↦{fullShare} f))
      ∗ bigSep (((((ownCells (thr d L)).erase (c8 d L)).erase (c9 d L)).erase (c10 d L)).erase (c11 d L)) fun g => semVal g 0)

theorem body_pre (hO : ∀ g, O g none = 0) :
    iprop(levAts (K (F := F)).L (K (F := F)).lev ∗ emp ∗ goRes d L fx ∗ ownBufs (thr d L) ∗ ownSems0 (thr d L) ∗ owes (thr d L) O W)
      ⊢ runPre d L O W fx (restR (F := F) d L) := by
  rw [ownSems0_V, ownBufs_V]
  unfold goRes runPre restR
  iintro ⟨#Hlv, -, ⟨HX, HOut⟩, ⟨H4, H5, H6, H7, Hbufs⟩, ⟨Hs8, Hs9, Hs10, Hs11, Hsems⟩, HO⟩
  ihave Hmw := ((K (F := F)).mayWaits_none (thr := thr d L) hO) $$ Hlv
  isplitr; · iexact Hmw
  isplitl [HO]; · iexact HO
  isplitl [HX]; · iexact HX
  isplitl [HOut]; · iexact HOut
  isplitl [H4]; · iexact H4
  isplitl [H5]; · iexact H5
  isplitl [H6]; · iexact H6
  isplitl [H7]; · iexact H7
  isplitl [Hs8]; · iexact Hs8
  isplitl [Hs9]; · iexact Hs9
  isplitl [Hs10]; · iexact Hs10
  isplitl [Hs11]; · iexact Hs11
  isplitl [Hbufs]; · iexact Hbufs
  iexact Hsems

theorem body_post :
    runPost d L O W fx (restR (F := F) d L)
      ⊢ iprop(tdRes d L fx ∗ ownBufs (thr d L) ∗ ownSems0 (thr d L) ∗ ∃ W', ⌜∀ p ∈ W', p ∈ W ∨ p.2 = none⌝ ∗ owes (thr d L) O W') := by
  rw [ownSems0_V, ownBufs_V]
  unfold tdRes runPost restR
  iintro ⟨HX, HOut, H4, H5, H6, H7, Hs8, Hs9, Hs10, Hs11, HW, Hbufs, Hsems⟩
  isplitl [HX HOut]
  · isplitl [HX]; · iexact HX
    iexact HOut
  isplitl [H4 H5 H6 H7 Hbufs]
  · isplitl [H4]; · iexact H4
    isplitl [H5]; · iexact H5
    isplitl [H6]; · iexact H6
    isplitl [H7]; · iexact H7
    iexact Hbufs
  isplitl [Hs8 Hs9 Hs10 Hs11 Hsems]
  · isplitl [Hs8]; · iexact Hs8
    isplitl [Hs9]; · iexact Hs9
    isplitl [Hs10]; · iexact Hs10
    isplitl [Hs11]; · iexact Hs11
    iexact Hsems
  iexact HW

/-- The task in the launch theorem's shape: from what the call hands the tile and the subcore's scoped storage to
    what the tile hands back and the storage again. -/
theorem tile_body (hF : (K (F := F)).Facts) (hO : ∀ g, O g none = 0) :
    iprop(levAts (K (F := F)).L (K (F := F)).lev ∗ emp ∗ goRes d L fx ∗ scopedBufs (thr d L) ∗ scopedSems0 (thr d L) ∗ owes (thr d L) O W)
      ⊢ wp frame (wpE (defs₀ (F := F)) 𝒱₀ (thr d L) none) Set.univ
          (cc8_sc_group L xtW (Memref.isWhole_whole _) oW (Memref.isWhole_whole _) a4 (Memref.isWhole_whole _) a5 (Memref.isWhole_whole _)
            a6 (Memref.isWhole_whole _) a7 (Memref.isWhole_whole _) cc8_scratch4 cc8_scratch5 cc8_scratch6 cc8_scratch7)
          fun _ => iprop(tdRes d L fx ∗ scopedBufs (thr d L) ∗ scopedSems0 (thr d L)
            ∗ ∃ W', ⌜∀ p ∈ W', p ∈ W ∨ p.2 = none⌝ ∗ owes (thr d L) O W') := by
  rw [(K (F := F)).scopedBufs_V hF d (cV L) (jV L), SparseCore.Cfg.scopedSems0_V (Val := Elt F) d (cV L) (jV L)]
  exact (body_pre d L O W fx hO).trans ((tile_run d L O W fx (restR (F := F) d L)).trans (wp_mono frame _ _ fun _ => body_post d L O W fx))

end Tile

end Cert.Proof.TileK8

end
-- ==== Proof.TileBVal8.lean ====
/-
  What the staging buffers of one vector subcore hold while it copies a piece of 3200 consecutive elements of row 8 of
  the transposed argument into the flat result, read index by index. No program and no ownership here: only the contents.

  A transfer lands the piece in row 0 of an 8 × 3200 staging array (`InRow`: position (0, t) of that row holds element
  (0, pos + t) of the transposed argument, `pos` the piece's first column). A loop of 200 trips copies that row, 16 lanes
  per trip, into the first 3200 elements of a flat staging array of 25600: trip `j` reads the 1 × 16 window at columns
  [16 j, 16 j + 16) of row 0 and writes it, flattened, at elements [16 j, 16 j + 16). After `j` trips the first 16 j
  elements of the flat array are the first 16 j elements of the row (`Lanes`); a trip extends the prefix by 16
  (`lanes_step`: an element below 16 j is outside the window written and keeps its value, an element of the window reads
  the lane written there, which is the row's element at the same column). A second transfer writes the first 3200
  elements of the flat array to the piece of the result at the same `pos`; so every element of that piece of the result
  holds the element of row 8 of the transposed argument at its own position (`out_written`): the composite of the three
  index maps t ↦ (0, pos + t) ↦ (0, t) ↦ t ↦ pos + t is the identity on positions of the row.
-/
import proofs.«206869_g37898791420194_cont_8to1_b_558_20_alg».proof.Proof.TileB8Defs
import proofs.«206869_g37898791420194_cont_8to1_b_558_20_alg».proof.Proof.Spec
import Idealize.ShloMosaic.Lib.WritesUnit
import Idealize.ShloMosaic.Lib.ValueLayout

noncomputable section

namespace Cert.Proof.TileBVal8

open Cert.Proof.TileB8 Cert.Kernel Cert.Kernel.Gen
open Idealize.ShloMosaic Idealize.ShloMosaic.ValueIdx

variable {F : FTy → Type} [FloatOps F]
variable (d : Dev nD) (L : grid8.Coords)
variable (fx : Buf (Elt F) ((Memref.whole main_v0_scv : Memref sig .scVector .hbm S22x1600000 .f32).view.loc (thr d L)))

abbrev rowRect : Rect S8x3200 := Rect.unit (s := S8x3200) ![0, 0] S1x3200.size inb_S8x3200_S1x3200_0_0

/-- row 0 of the staging array is piece n of the argument row -/
def InRow (a : Memref sig .scVector .vmem S8x3200 .f32) (ga : Buf (Elt F) (a.view.loc (thr d L))) (n : ℕ) : Prop :=
  ∀ y : S1x3200.Idx, a.view.read (Elt F) ga (rowRect.emb y) = (inM L n).view.read (Elt F) fx y

theorem inRow_fetch (a : Memref sig .scVector .vmem S8x3200 .f32) (gold : Buf (Elt F) (a.view.loc (thr d L)))
    (w : S1x3200.Idx → Elt F .f32) (n : ℕ) (hw : ∀ y, w y = (inM L n).view.read (Elt F) fx y) :
    InRow d L fx a (a.view.writes (Elt F) gold [⟨rowRect, w⟩]) n :=
  fun y => (View.read_writes_cons_emb a.view gold rowRect w [] y).trans (hw y)

def Lanes (a : Memref sig .scVector .vmem S8x3200 .f32) (b : Memref sig .scVector .vmem S25600 .f32)
    (ga : Buf (Elt F) (a.view.loc (thr d L))) (gb : Buf (Elt F) (b.view.loc (thr d L))) (j : ℕ) : Prop :=
  ∀ (r : ℕ) (hr : r < 3200), r < 16 * j →
    b.view.read (Elt F) gb (ix1 (⟨r, by omega⟩ : Fin 25600)) = a.view.read (Elt F) ga (ix2 (0 : Fin 8) (⟨r, hr⟩ : Fin 3200))

theorem lanes_zero (a : Memref sig .scVector .vmem S8x3200 .f32) (b : Memref sig .scVector .vmem S25600 .f32)
    (ga : Buf (Elt F) (a.view.loc (thr d L))) (gb : Buf (Elt F) (b.view.loc (thr d L))) : Lanes d L a b ga gb 0 := by
  intro r hr h; omega

/-- The 1 × 16 window at column `c` of the staging array, read at lane `t`, is element `(0, c + t)`. -/
theorem idx_window {off : Fin 2 → ℕ} {c : ℕ} (h : off = ![0, c]) (p : ∀ a', off a' + S1x16.size a' ≤ S8x3200.size a')
    (t : Fin 16) (hr : c + t.val < 3200) :
    (Rect.unit (s := S8x3200) off S1x16.size p).toLoadRect.idx (ix2 (0 : Fin 1) t) = ix2 (0 : Fin 8) (⟨c + t.val, hr⟩ : Fin 3200) := by
  subst h
  funext a'; apply Fin.ext
  rw [LoadRect.idx_apply]
  match a' with
  | ⟨0, _⟩ => show 0 + 1 * 0 = 0; omega
  | ⟨1, _⟩ => show c + 1 * t.val = c + t.val; omega

/-- One trip of a lane-copy loop, the offsets given by their closed forms. -/
theorem lanes_step_core (a : Memref sig .scVector .vmem S8x3200 .f32) (b : Memref sig .scVector .vmem S25600 .f32)
    (ga : Buf (Elt F) (a.view.loc (thr d L))) (gb : Buf (Elt F) (b.view.loc (thr d L)))
    (t : ℕ) {off3 : Fin 2 → ℕ} {off4 : Fin 1 → ℕ} (h3 : off3 = ![0, 16 * t]) (h4 : off4 = ![16 * t])
    (p3 : ∀ a', off3 a' + S1x16.size a' ≤ S8x3200.size a') (p4 : ∀ a', off4 a' + S16.size a' ≤ S25600.size a')
    (h : Lanes d L a b ga gb t) :
    Lanes d L a b ga (b.view.writes (Elt F) gb [⟨Rect.unit (s := S25600) off4 S16.size p4,
      shapeCast S16 (a.view.readAt (Elt F) (Rect.unit (s := S8x3200) off3 S1x16.size p3).toLoadRect ga) shapeCasts_S1x16_S16⟩]) (t + 1) := by
  intro r hr hlt
  by_cases hlo : r < 16 * t
  · refine (View.read_writes_cons_unit_of_not_mem b.view gb p4 _ [] _ h4 (0 : Fin 1) (Or.inl ?_)).trans (h r hr hlo)
    show r < 16 * t
    exact hlo
  · have hx : r - 16 * t < 16 := by omega
    refine (View.read_writes_cons_unit_of_mem b.view gb p4 _ [] _ (ix1 (⟨r - 16 * t, hx⟩ : Fin 16)) h4 ?_).trans ?_
    · intro a'
      match a' with
      | ⟨0, _⟩ => show r = 16 * t + (r - 16 * t); omega
    · rw [shapeCast_1a_a_apply, View.readAt_apply, idx_window h3 p3 ⟨r - 16 * t, hx⟩ (by show 16 * t + (r - 16 * t) < 3200; omega)]
      congr 2
      apply Fin.ext
      show 16 * t + (r - 16 * t) = r
      omega

theorem lanes_step (a : Memref sig .scVector .vmem S8x3200 .f32) (b : Memref sig .scVector .vmem S25600 .f32)
    (ga : Buf (Elt F) (a.view.loc (thr d L))) (gb : Buf (Elt F) (b.view.loc (thr d L)))
    (j : Fin k8_t2_loop.trips) (p3 : ∀ a', (k8_off3 j) a' + S1x16.size a' ≤ S8x3200.size a')
    (p4 : ∀ a', (k8_off4 j) a' + S16.size a' ≤ S25600.size a') (h : Lanes d L a b ga gb j.val) :
    Lanes d L a b ga (b.view.writes (Elt F) gb [⟨Rect.unit (s := S25600) (k8_off4 j) S16.size p4,
      k8_pay1 (a.view.readAt (Elt F) (Rect.unit (s := S8x3200) (k8_off3 j) S1x16.size p3).toLoadRect ga)⟩]) (j.val + 1) :=
  lanes_step_core d L a b ga gb j.val (k8_off3_eq j) (k8_off4_eq j) p3 p4 h

theorem lanes_step' (a : Memref sig .scVector .vmem S8x3200 .f32) (b : Memref sig .scVector .vmem S25600 .f32)
    (ga : Buf (Elt F) (a.view.loc (thr d L))) (gb : Buf (Elt F) (b.view.loc (thr d L)))
    (j : Fin k8_t3_loop.trips) (p3 : ∀ a', (k8_off8 j) a' + S1x16.size a' ≤ S8x3200.size a')
    (p4 : ∀ a', (k8_off9 j) a' + S16.size a' ≤ S25600.size a') (h : Lanes d L a b ga gb j.val) :
    Lanes d L a b ga (b.view.writes (Elt F) gb [⟨Rect.unit (s := S25600) (k8_off9 j) S16.size p4,
      k8_pay2 (a.view.readAt (Elt F) (Rect.unit (s := S8x3200) (k8_off8 j) S1x16.size p3).toLoadRect ga)⟩]) (j.val + 1) :=
  lanes_step_core d L a b ga gb j.val (k8_off8_eq j) (k8_off9_eq j) p3 p4 h

/-- Position `y` of the write-out window of the flat staging array is its element `y 0`. -/
theorem stg_emb (y : S3200.Idx) (hy : (y 0).val < 25600) :
    (Rect.unit (s := S25600) ![0] S3200.size inb_S25600_S3200_0).emb y = ix1 (⟨(y 0).val, hy⟩ : Fin 25600) := by
  funext a'; apply Fin.ext
  match a' with
  | ⟨0, _⟩ => show 0 + 1 * (y 0).val = (y 0).val; omega

/-- Position `(0, t)` of row 0 of the staging array is its element `(0, t)`. -/
theorem row_emb (t : Fin 3200) : rowRect.emb (ix2 (0 : Fin 1) t) = ix2 (0 : Fin 8) t := by
  funext a'; apply Fin.ext
  match a' with
  | ⟨0, _⟩ => show 0 + 1 * 0 = 0; omega
  | ⟨1, _⟩ => show 0 + 1 * t.val = t.val; omega

/-- Position `(0, t)` of piece `n` of the argument row is element `(0, pos + t)` of the transposed argument;
    position `y` of piece `n` of the result is element `pos + y 0` of the result. -/
theorem in_emb (n : ℕ) (t : Fin 3200) (h : pos L n + t.val < 1600000) :
    (inM L n).view.emb (ix2 (0 : Fin 1) t) = ix2 (8 : Fin 22) (⟨pos L n + t.val, h⟩ : Fin 1600000) := by
  funext a'; apply Fin.ext
  match a' with
  | ⟨0, _⟩ => show 8 + 1 * 0 = 8; omega
  | ⟨1, _⟩ => show pos L n + 1 * t.val = pos L n + t.val; omega

theorem out_emb (n : ℕ) (y : S3200.Idx) (h : pos L n + (y 0).val < 1600000) :
    (outM L n).view.emb y = ix1 (⟨pos L n + (y 0).val, h⟩ : Fin 1600000) := by
  funext a'; apply Fin.ext
  match a' with
  | ⟨0, _⟩ => show pos L n + 1 * (y 0).val = pos L n + (y 0).val; omega

/-- Both lane-copy loops run 200 trips: 200 · 16 = 3200, the whole row. -/
theorem trips2 : k8_t2_loop.trips = 200 := by decide
theorem trips3 : k8_t3_loop.trips = 200 := by decide

/-- After all its trips a lane-copy loop has copied the whole row. -/
theorem lanes_all (a : Memref sig .scVector .vmem S8x3200 .f32) (b : Memref sig .scVector .vmem S25600 .f32)
    (ga : Buf (Elt F) (a.view.loc (thr d L))) (gb : Buf (Elt F) (b.view.loc (thr d L)))
    (h : Lanes d L a b ga gb k8_t2_loop.trips) : Lanes d L a b ga gb 200 := trips2 ▸ h
theorem lanes_all' (a : Memref sig .scVector .vmem S8x3200 .f32) (b : Memref sig .scVector .vmem S25600 .f32)
    (ga : Buf (Elt F) (a.view.loc (thr d L))) (gb : Buf (Elt F) (b.view.loc (thr d L)))
    (h : Lanes d L a b ga gb k8_t3_loop.trips) : Lanes d L a b ga gb 200 := trips3 ▸ h

/-- The write-out of a piece: the first 3200 elements of the flat staging array, which the 200 lane copies filled from
    row 0 of the staging array, which the fetch filled from piece `n` of row 8 of the transposed argument, land at
    piece `n` of the result, at the same positions of the row. -/
theorem out_written (a : Memref sig .scVector .vmem S8x3200 .f32) (b : Memref sig .scVector .vmem S25600 .f32) (n : ℕ)
    (ga : Buf (Elt F) (a.view.loc (thr d L))) (gb : Buf (Elt F) (b.view.loc (thr d L)))
    (f0 : Buf (Elt F) ((outM L n).view.loc (thr d L))) (w : S3200.Idx → Elt F .f32)
    (hw : ∀ y, w y = (stg b).view.read (Elt F) gb y) (hl : Lanes d L a b ga gb 200) (hr : InRow d L fx a ga n) (hv : valid L n) :
    ∀ i ∈ (outM L n).view.set, ((outM L n).view.writes (Elt F) f0 [⟨Rect.whole _, w⟩]) i = Cert.Spec.row 8 fx i := by
  intro i hi
  obtain ⟨y, -, rfl⟩ := Finset.mem_map.mp hi
  have hy : (y 0).val < 3200 := (y 0).isLt
  have hp : pos L n + (y 0).val < 1600000 := by unfold pos; omega
  have e1 : (outM L n).view.writes (Elt F) f0 [⟨Rect.whole _, w⟩] ((outM L n).view.emb y) = w y := by
    have h := View.read_writes_cons_emb (outM L n).view f0 (Rect.whole _) w [] y
    rw [Rect.emb_whole_apply] at h
    exact (cast_eq _ _).symm.trans ((View.read_apply _ _).symm.trans h)
  have e2 : (stg b).view.read (Elt F) gb y = b.view.read (Elt F) gb (ix1 (⟨(y 0).val, by omega⟩ : Fin 25600)) :=
    congrArg (b.view.read (Elt F) gb) (stg_emb y (by omega))
  have e3 : a.view.read (Elt F) ga (ix2 (0 : Fin 8) (⟨(y 0).val, hy⟩ : Fin 3200))
      = (inM L n).view.read (Elt F) fx (ix2 (0 : Fin 1) (⟨(y 0).val, hy⟩ : Fin 3200)) :=
    (congrArg (a.view.read (Elt F) ga) (row_emb ⟨(y 0).val, hy⟩).symm).trans (hr _)
  have e4 : (inM L n).view.read (Elt F) fx (ix2 (0 : Fin 1) (⟨(y 0).val, hy⟩ : Fin 3200))
      = fx (ix2 (8 : Fin 22) (⟨pos L n + (y 0).val, hp⟩ : Fin 1600000)) :=
    ((View.read_apply _ _).trans (cast_eq _ _)).trans (congrArg fx (in_emb L n ⟨(y 0).val, hy⟩ hp))
  have e5 : Cert.Spec.row 8 fx ((outM L n).view.emb y) = fx (ix2 (8 : Fin 22) (⟨pos L n + (y 0).val, hp⟩ : Fin 1600000)) :=
    (congrArg (Cert.Spec.row 8 fx) (out_emb L n y hp)).trans (Cert.Spec.row_apply 8 fx _)
  exact e1.trans ((hw y).trans (e2.trans ((hl _ hy (by omega)).trans (e3.trans (e4.trans e5.symm)))))

end Cert.Proof.TileBVal8

end
-- ==== Proof.TileB8.lean ====
/-
  One vector subcore's task of copy kernel 8 (counting from 0), run symbolically: the two fetch slots and two write-out slots
  between trips of the main loop (what each transfer in flight will hand back, and what the staging buffers hold), the
  invariant of the main loop and of the two lane-copy loops, and the task's run — from the tile's pieces of row 8 of
  the transposed argument and of the result to the same pieces with the result holding the row's elements.
-/
import proofs.«206869_g37898791420194_cont_8to1_b_558_20_alg».proof.Proof.TileB8Defs
import proofs.«206869_g37898791420194_cont_8to1_b_558_20_alg».proof.Proof.TileBVal8
noncomputable section

namespace Cert.Proof.TileB8

open Cert.Kernel Cert.Kernel.Gen Cert.Proof.TileBVal8
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 22) (Elt F) ℕ UU ℕ
local notation "xtW" => (Memref.whole Cert.Kernel.main_v0_scv : Memref Cert.Kernel.sig Kind.scVector Space.hbm Cert.Kernel.S22x1600000 EltTy.f32)
local notation "oW" => (Memref.whole Cert.Kernel.main_v9_scv : Memref Cert.Kernel.sig Kind.scVector Space.hbm Cert.Kernel.S1600000 EltTy.f32)
local notation "a4" => (Memref.whole Cert.Kernel.cc8_scratch0 : Memref Cert.Kernel.sig Kind.scVector Space.vmem Cert.Kernel.S8x3200 EltTy.f32)
local notation "a5" => (Memref.whole Cert.Kernel.cc8_scratch1 : Memref Cert.Kernel.sig Kind.scVector Space.vmem Cert.Kernel.S8x3200 EltTy.f32)
local notation "a6" => (Memref.whole Cert.Kernel.cc8_scratch2 : Memref Cert.Kernel.sig Kind.scVector Space.vmem Cert.Kernel.S25600 EltTy.f32)
local notation "a7" => (Memref.whole Cert.Kernel.cc8_scratch3 : Memref Cert.Kernel.sig Kind.scVector Space.vmem Cert.Kernel.S25600 EltTy.f32)

variable [FloatOps F]

section Tile

variable (d : Dev nD) (L : grid8.Coords)
variable (O : CellTallies nD τ sig (HIx 22)) (W : Waits sig (HIx 22))
variable (fx : Buf (Elt F) ((xtW).view.loc (thr d L)))

/-- Piece `n` of the result at its final contents. -/
abbrev oqPiece (n : ℕ) : sProp 𝕄 := (outM L n).view.loc (thr d L) ↦[(outM L n).view.set]{fullShare} (Cert.Spec.row 8 fx)
theorem oQ_pos {n : ℕ} (v : valid L n) : oQ d L fx n = oqPiece d L fx n := if_pos v
theorem oQ_neg {n : ℕ} (v : ¬ valid L n) : oQ d L fx n = iprop(emp) := if_neg v

/-- A fetch slot, remembering that the staging row it will hand back holds the piece. -/
def inSlotV (a : Memref sig .scVector .vmem S8x3200 .f32) (sm : DmaSem sig) (n : ℕ) : sProp 𝕄 :=
  if valid L n then
    iprop(∃ g, ⌜InRow d L fx a g n⌝ ∗ Transfers.Flight countersEmb (thr d L) (SemLoc.dma sm) (default : HIx 22) NN
      iprop((a.view.loc (thr d L) ↦{fullShare} g) ∗ xtPiece d L fx n))
  else iprop((∃ g, a.view.loc (thr d L) ↦{fullShare} g) ∗ semVal (thr d L, SemLoc.dma sm) 0)

/-- A write-out slot: the piece in flight will come back holding the row's elements. -/
def outSlotV (a : Memref sig .scVector .vmem S25600 .f32) (sm : DmaSem sig) (m : ℕ) : sProp 𝕄 :=
  if 2 ≤ m ∧ valid L (m - 2) then
    iprop(∃ g, Transfers.Flight countersEmb (thr d L) (SemLoc.dma sm) (default : HIx 22) NN
        iprop(oqPiece d L fx (m - 2) ∗ ((stg a).view.loc (thr d L) ↦[(stg a).view.set]{fullShare} g))
      ∗ (a.view.loc (thr d L) ↦[Finset.univ \ (stg a).view.set]{fullShare} g))
  else iprop((∃ g, a.view.loc (thr d L) ↦{fullShare} g) ∗ semVal (thr d L, SemLoc.dma sm) 0)

theorem inSlotV_pos {a : Memref sig .scVector .vmem S8x3200 .f32} {sm : DmaSem sig} {n : ℕ} (v : valid L n) :
    inSlotV d L fx a sm n = iprop(∃ g, ⌜InRow d L fx a g n⌝ ∗ Transfers.Flight countersEmb (thr d L) (SemLoc.dma sm) (default : HIx 22) NN
      iprop((a.view.loc (thr d L) ↦{fullShare} g) ∗ xtPiece d L fx n)) := by unfold inSlotV; rw [if_pos v]
theorem inSlotV_neg {a : Memref sig .scVector .vmem S8x3200 .f32} {sm : DmaSem sig} {n : ℕ} (v : ¬ valid L n) :
    inSlotV d L fx a sm n = iprop((∃ g, a.view.loc (thr d L) ↦{fullShare} g) ∗ semVal (thr d L, SemLoc.dma sm) 0) := by
  unfold inSlotV; rw [if_neg v]
theorem outSlotV_pos {a : Memref sig .scVector .vmem S25600 .f32} {sm : DmaSem sig} {m : ℕ} (h : 2 ≤ m ∧ valid L (m - 2)) :
    outSlotV d L fx a sm m = iprop(∃ g, Transfers.Flight countersEmb (thr d L) (SemLoc.dma sm) (default : HIx 22) NN
        iprop(oqPiece d L fx (m - 2) ∗ ((stg a).view.loc (thr d L) ↦[(stg a).view.set]{fullShare} g))
      ∗ (a.view.loc (thr d L) ↦[Finset.univ \ (stg a).view.set]{fullShare} g)) := by unfold outSlotV; rw [if_pos h]
theorem outSlotV_neg {a : Memref sig .scVector .vmem S25600 .f32} {sm : DmaSem sig} {m : ℕ} (h : ¬ (2 ≤ m ∧ valid L (m - 2))) :
    outSlotV d L fx a sm m = iprop((∃ g, a.view.loc (thr d L) ↦{fullShare} g) ∗ semVal (thr d L, SemLoc.dma sm) 0) := by
  unfold outSlotV; rw [if_neg h]

/-- A fetch just issued: the staging row will hold what the transfer reads, which is the piece. -/
theorem fl_inV {off : Fin 2 → ℕ} {n : ℕ} (h : off = ![8, pos L n]) (p : ∀ a, off a + S1x3200.size a ≤ S22x1600000.size a) (v : valid L n)
    (a : Memref sig .scVector .vmem S8x3200 .f32) (sm : DmaSem sig) :
    (iprop(∃ (gold : Buf (Elt F) (a.view.loc (thr d L))) (w : S1x3200.Idx → Elt F .f32),
        ⌜∀ y, w y = ((xtW).slice (Rect.unit (s := S22x1600000) off S1x3200.size p) (fun _ => rfl)).view.read (Elt F) fx y⌝
        ∗ Transfers.Flight countersEmb (thr d L) (SemLoc.dma sm) (default : HIx 22) NN
          iprop((a.view.loc (thr d L) ↦{fullShare} a.view.writes (Elt F) gold [⟨rowRect, w⟩])
            ∗ (((xtW).slice (Rect.unit (s := S22x1600000) off S1x3200.size p) (fun _ => rfl)).view.loc (thr d L)
                ↦[((xtW).slice (Rect.unit (s := S22x1600000) off S1x3200.size p) (fun _ => rfl)).view.set]{fullShare} fx))) : sProp 𝕄)
      ⊢ inSlotV d L fx a sm n := by
  subst h
  rw [inSlotV_pos d L fx v]
  iintro ⟨%gold, %w, %hw, H⟩
  iexists _
  isplitr
  · ipureintro; exact inRow_fetch d L fx a gold w n hw
  · iexact H

set_option maxHeartbeats 4000000 in
/-- A write-out just issued from a flat staging buffer whose first 3200 elements are the staging row, itself piece
    `n` of the argument row: the piece of the result will hold the row's elements. -/
theorem fl_outV {off : Fin 1 → ℕ} {n : ℕ} (h : off = ![pos L n]) (p : ∀ a, off a + S3200.size a ≤ S1600000.size a) (v : valid L n)
    (ar : Memref sig .scVector .vmem S8x3200 .f32) (a : Memref sig .scVector .vmem S25600 .f32) (sm : DmaSem sig)
    (f0 : Buf (Elt F) ((oW).view.loc (thr d L))) (ga : Buf (Elt F) (ar.view.loc (thr d L))) (gb : Buf (Elt F) (a.view.loc (thr d L)))
    (hl : Lanes d L ar a ga gb 200) (hr : InRow d L fx ar ga n) :
    (iprop(∃ (w : S3200.Idx → Elt F .f32),
        ⌜∀ y, w y = (stg a).view.read (Elt F) gb y⌝
        ∗ Transfers.Flight countersEmb (thr d L) (SemLoc.dma sm) (default : HIx 22) NN
          iprop((((oW).slice (Rect.unit (s := S1600000) off S3200.size p) (fun _ => rfl)).view.loc (thr d L)
                ↦[((oW).slice (Rect.unit (s := S1600000) off S3200.size p) (fun _ => rfl)).view.set]{fullShare}
                  (((oW).slice (Rect.unit (s := S1600000) off S3200.size p) (fun _ => rfl)).view.writes (Elt F) f0 [⟨Rect.whole _, w⟩]))
            ∗ ((stg a).view.loc (thr d L) ↦[(stg a).view.set]{fullShare} gb))
        ∗ (a.view.loc (thr d L) ↦[Finset.univ \ (stg a).view.set]{fullShare} gb)) : sProp 𝕄)
      ⊢ outSlotV d L fx a sm (n + 2) := by
  subst h
  rw [outSlotV_pos d L fx (m := n + 2) ⟨by omega, by simpa using v⟩]
  iintro ⟨%w, %hw, H, R⟩
  have hD : (iprop(((outM L n).view.loc (thr d L) ↦[(outM L n).view.set]{fullShare} ((outM L n).view.writes (Elt F) f0 [⟨Rect.whole _, w⟩]))
          ∗ ((stg a).view.loc (thr d L) ↦[(stg a).view.set]{fullShare} gb)) : sProp 𝕄)
      ⊢ iprop(oqPiece d L fx (n + 2 - 2) ∗ ((stg a).view.loc (thr d L) ↦[(stg a).view.set]{fullShare} gb)) := by
    rw [Nat.add_sub_cancel]
    have e : (((outM L n).view.loc (thr d L) ↦[(outM L n).view.set]{fullShare} ((outM L n).view.writes (Elt F) f0 [⟨Rect.whole _, w⟩])) : sProp 𝕄)
        = oqPiece d L fx n := pointsTo_congr (out_written d L fx ar a n ga gb f0 w hw hl hr v)
    iintro ⟨H1, H2⟩
    isplitl [H1]
    · iapply (Entails.of_eq e); iexact H1
    · iexact H2
  iexists gb
  isplitl [H]
  · iapply (Transfers.Flight_mono countersEmb (thr d L) hD); iexact H
  · iexact R

/-- The result pieces outside the slots before trip `t`: those already written hold the row, the others some contents. -/
def oMix (t n : ℕ) : sProp 𝕄 := if n + 2 < 2 * t then oQ d L fx n else oP (F := F) d L n
theorem oMix_lt {t n : ℕ} (h : n + 2 < 2 * t) : oMix d L fx t n = oQ d L fx n := if_pos h
theorem oMix_ge {t n : ℕ} (h : ¬ n + 2 < 2 * t) : oMix d L fx t n = oP (F := F) d L n := if_neg h
theorem oMix_core (k : ℕ) : bigSep (oCore k) (oMix d L fx k) = bigSep (oCore k) (oMix d L fx (k + 1)) :=
  bigSep_congr fun n hn => by
    have hn' : n + 2 ≠ 2 * k ∧ n + 2 ≠ 2 * k + 1 ∧ n ≠ 2 * k ∧ n ≠ 2 * k + 1 := by
      simp only [oCore, Finset.mem_filter, Finset.mem_range] at hn; exact hn.2
    by_cases h : n + 2 < 2 * k
    · rw [oMix_lt d L fx h, oMix_lt d L fx (by omega)]
    · rw [oMix_ge d L fx h, oMix_ge d L fx (by omega)]
theorem oMix_zero : bigSep (oSet 0) (oMix d L fx 0) = bigSep (Finset.range 18) (oP (F := F) d L) := by
  rw [oSet_zero]; exact bigSep_congr fun n _ => oMix_ge d L fx (by omega)
theorem oMix_end : bigSep (oSet 8) (oMix d L fx 8) = bigSep (oSet 8) (oQ d L fx) :=
  bigSep_congr fun n hn => by
    have hn' : n < 18 ∧ n + 2 ≠ 16 ∧ n + 2 ≠ 17 := by simpa only [oSet, Finset.mem_filter, Finset.mem_range] using hn
    by_cases h : n + 2 < 2 * 8
    · exact oMix_lt d L fx h
    · rw [oMix_ge d L fx h, oP_neg (F := F) d L (by unfold valid; omega), oQ_neg d L fx (by unfold valid; omega)]

/-- The lane-copy loops: before trip `j` the first 16·j elements of the flat staging buffer are the staging row's. -/
def laneV0 (g4 : Buf (Elt F) ((a4).view.loc (thr d L))) (j : ℕ) (_ : PUnit) : sProp 𝕄 :=
  iprop(((a4).view.loc (thr d L) ↦{fullShare} g4) ∗ (∃ g, ((a6).view.loc (thr d L) ↦{fullShare} g) ∗ ⌜Lanes d L a4 a6 g4 g j⌝))
def laneV1 (g5 : Buf (Elt F) ((a5).view.loc (thr d L))) (j : ℕ) (_ : PUnit) : sProp 𝕄 :=
  iprop(((a5).view.loc (thr d L) ↦{fullShare} g5) ∗ (∃ g, ((a7).view.loc (thr d L) ↦{fullShare} g) ∗ ⌜Lanes d L a5 a7 g5 g j⌝))

def invV (t : ℕ) (_ : PUnit) : sProp 𝕄 :=
  iprop(Transfers.MayWaits (thr d L) (none : HIx 22) O
    ∗ (∃ W', ⌜∀ p ∈ W', p ∈ W ∨ p.2 = none⌝ ∗ owes (thr d L) O W')
    ∗ bigSep (xSet t) (xP d L fx) ∗ bigSep (oSet t) (oMix d L fx t)
    ∗ inSlotV d L fx a4 cc8_scratch4.sem (2 * t) ∗ outSlotV d L fx a6 cc8_scratch6.sem (2 * t)
    ∗ inSlotV d L fx a5 cc8_scratch5.sem (2 * t + 1) ∗ outSlotV d L fx a7 cc8_scratch7.sem (2 * t + 1))

/-- After the last trip nothing of the argument row is in a slot: the tile holds all its pieces. -/
theorem xRange_end : bigSep (xSet 8) (xP d L fx) ⊢ bigSep (Finset.range 18) (xP d L fx) := by
  rw [two_out (s := Finset.range 18) (a := 16) (b := 17) (by decide) (by decide) (by decide),
    show ((Finset.range 18).erase 16).erase 17 = xSet 8 by decide]
  iintro H
  isplitr; · iapply (Entails.of_eq (xP_neg d L fx (n := 16) (by unfold valid; omega)).symm); iempintro
  isplitr; · iapply (Entails.of_eq (xP_neg d L fx (n := 17) (by unfold valid; omega)).symm); iempintro
  iexact H
omit [FloatOps F] in
theorem oRange_end (Φ : ℕ → sProp 𝕄) : bigSep (Finset.range 18) Φ = iprop(Φ 14 ∗ Φ 15 ∗ bigSep (oSet 8) Φ) := by
  rw [two_out (s := Finset.range 18) (a := 14) (b := 15) (by decide) (by decide) (by decide),
    show ((Finset.range 18).erase 14).erase 15 = oSet 8 by decide]

/-- What the run starts from and ends with, beside an untouched rest `R`. -/
def runPre (R : sProp 𝕄) : sProp 𝕄 :=
    iprop(Transfers.MayWaits (thr d L) (none : HIx 22) O ∗ owes (thr d L) O W
        ∗ bigSep (Finset.range 18) (xP d L fx) ∗ bigSep (Finset.range 18) (oP (F := F) d L)
        ∗ (∃ g, (a4).view.loc (thr d L) ↦{fullShare} g) ∗ (∃ g, (a5).view.loc (thr d L) ↦{fullShare} g)
        ∗ (∃ g, (a6).view.loc (thr d L) ↦{fullShare} g) ∗ (∃ g, (a7).view.loc (thr d L) ↦{fullShare} g)
        ∗ semVal (thr d L, SemLoc.dma cc8_scratch4.sem) 0 ∗ semVal (thr d L, SemLoc.dma cc8_scratch5.sem) 0
        ∗ semVal (thr d L, SemLoc.dma cc8_scratch6.sem) 0 ∗ semVal (thr d L, SemLoc.dma cc8_scratch7.sem) 0 ∗ R)
def runPost (R : sProp 𝕄) : sProp 𝕄 :=
    iprop(bigSep (Finset.range 18) (xP d L fx) ∗ bigSep (Finset.range 18) (oQ d L fx)
            ∗ (∃ g, (a4).view.loc (thr d L) ↦{fullShare} g) ∗ (∃ g, (a5).view.loc (thr d L) ↦{fullShare} g)
            ∗ (∃ g, (a6).view.loc (thr d L) ↦{fullShare} g) ∗ (∃ g, (a7).view.loc (thr d L) ↦{fullShare} g)
            ∗ semVal (thr d L, SemLoc.dma cc8_scratch4.sem) 0 ∗ semVal (thr d L, SemLoc.dma cc8_scratch5.sem) 0
            ∗ semVal (thr d L, SemLoc.dma cc8_scratch6.sem) 0 ∗ semVal (thr d L, SemLoc.dma cc8_scratch7.sem) 0
            ∗ (∃ W', ⌜∀ p ∈ W', p ∈ W ∨ p.2 = none⌝ ∗ owes (thr d L) O W') ∗ R)

set_option maxHeartbeats 16000000 in
/-- The task's run: from its pieces of the argument row and of the result, the four staging buffers and the four
    semaphores at zero, to the same with every piece of the result holding the row's elements. -/
theorem tile_run (R : sProp 𝕄) :
    runPre d L O W fx R
      ⊢ wp frame (wpE (defs₀ (F := F)) 𝒱₀ (thr d L) none) Set.univ
          (cc8_sc_group L xtW (Memref.isWhole_whole _) oW (Memref.isWhole_whole _) a4 (Memref.isWhole_whole _) a5 (Memref.isWhole_whole _)
            a6 (Memref.isWhole_whole _) a7 (Memref.isWhole_whole _) cc8_scratch4 cc8_scratch5 cc8_scratch6 cc8_scratch7)
          fun _ => runPost d L O W fx R := by
  unfold runPre runPost
  have v0 : valid L 0 := Or.inl (by omega)
  have v1 : valid L 1 := Or.inl (by omega)
  have k8_h7 : k8_cond7 L = 1#1 := cond7_iff L
  iintro ⟨#Hmw, HO, HX, HOut, ⟨%g4, H4⟩, ⟨%g5, H5⟩, ⟨%g6, H6⟩, ⟨%g7, H7⟩, Hs8, Hs9, Hs10, Hs11, HR⟩
  ihave HX := (Entails.of_eq (xRange_split d L fx v0 v1)) $$ HX
  icases HX with ⟨X0, X1, HX⟩
  ihave X0 := (Entails.of_eq (in_congr d L (off_in0 L v0).symm (in_inb L _) (k8_off1_inb L 0) fx)) $$ X0
  ihave X1 := (Entails.of_eq (in_congr d L (off_in1 L v1).symm (in_inb L _) (k8_off1_inb L 1) fx)) $$ X1
  sl_unfold [cc8_sc_group]
  sl_exec
  ihave S8 := (fl_inV d L fx (off_in0 L v0) (k8_off1_inb L 0) v0 a4 cc8_scratch4.sem) $$ [Hs8]
  · iexists _, _
    isplitr
    rotate_left
    · iexact Hs8
    ipureintro; intro y; rfl
  ihave S9 := (fl_inV d L fx (off_in1 L v1) (k8_off1_inb L 1) v1 a5 cc8_scratch5.sem) $$ [Hs9]
  · iexists _, _
    isplitr
    rotate_left
    · iexact Hs9
    ipureintro; intro y; rfl
  sl_for (invV d L O W fx) $$ [HO HX HOut S8 S9 H6 H7 Hs10 Hs11]
  case region =>
    intro (k : Fin k8_t1_loop.trips) acc
    have hk : k.val < 8 := Nat.lt_of_lt_of_eq k.isLt trips1
    unfold invV
    iintro ⟨#Hmw, ⟨%W', %hW', HO⟩, HX, HOut, S8, S10, S9, S11⟩
    by_cases hk1 : 1 ≤ k.val
    · by_cases v3 : valid L (2 * k.val + 3)
      · -- the generic trip: both drains, both pieces worked, both next fetches issued
        have hk6 : k.val ≤ 6 := by unfold valid at v3; omega
        have k8_h1 : k8_cond1 k = 1#1 := (cond1_iff k).mpr (by omega)
        have k8_h2 : k8_cond2 L k = 1#1 := cond2_iff L k
        have k8_h3 : k8_cond3 L k = 1#1 := (cond3_iff L k).mpr (by omega)
        have k8_h4 : k8_cond4 k = 1#1 := (cond4_iff k).mpr (by omega)
        have k8_h5 : k8_cond5 L k = 1#1 := (cond5_iff L k).mpr (by first | (unfold valid big at *; omega) | (unfold big at *; omega) | omega)
        have k8_h6 : k8_cond6 L k = 1#1 := (cond6_iff L k).mpr (by first | (unfold valid big at *; omega) | (unfold big at *; omega) | omega)
        have v0 : valid L (2 * k.val) := by unfold valid big at *; omega
        have v1 : valid L (2 * k.val + 1) := by unfold valid big at *; omega
        have v2 : valid L (2 * k.val + 2) := by unfold valid big at *; omega
        have v3' : valid L (2 * k.val + 3) := by unfold valid big at *; omega
        have hm0 : 2 ≤ 2 * k.val ∧ valid L (2 * k.val - 2) := ⟨by omega, by unfold valid big at *; omega⟩
        have hm1 : 2 ≤ 2 * k.val + 1 ∧ valid L (2 * k.val + 1 - 2) := ⟨by omega, by unfold valid big at *; omega⟩
        ihave S8 := (Entails.of_eq (inSlotV_pos d L fx v0)) $$ S8
        icases S8 with ⟨%g4, %hin4, F8⟩
        ihave S9 := (Entails.of_eq (inSlotV_pos d L fx v1)) $$ S9
        icases S9 with ⟨%g5, %hin5, F9⟩
        ihave S10 := (Entails.of_eq (outSlotV_pos d L fx hm0)) $$ S10
        icases S10 with ⟨%g6, F10, R6⟩
        ihave S11 := (Entails.of_eq (outSlotV_pos d L fx hm1)) $$ S11
        icases S11 with ⟨%g7, F11, R7⟩
        ihave HX := (Entails.of_eq (xSet_out (xP d L fx) k.val hk)) $$ HX
        icases HX with ⟨X2, X3, HX⟩
        ihave X2 := (Entails.of_eq (xP_pos d L fx v2)) $$ X2
        ihave X2 := (Entails.of_eq (in_congr d L (off_6 L k v2).symm (in_inb L _) (k8_off6_inb L k k8_h3) fx)) $$ X2
        ihave X3 := (Entails.of_eq (xP_pos d L fx v3')) $$ X3
        ihave X3 := (Entails.of_eq (in_congr d L (off_11 L k v3').symm (in_inb L _) (k8_off11_inb L k k8_h6) fx)) $$ X3
        ihave HOut := (Entails.of_eq (oSet_out (oMix d L fx k.val) k.val hk)) $$ HOut
        icases HOut with ⟨Y0, Y1, HOut⟩
        ihave Y0 := (Entails.of_eq ((oMix_ge d L fx (t := k.val) (n := 2 * k.val) (by omega)).trans (oP_pos (F := F) d L v0))) $$ Y0
        icases Y0 with ⟨%f0, Y0⟩
        ihave Y0 := (Entails.of_eq (out_congr d L (off_5 L k v0).symm (out_inb L _) (k8_off5_inb L k k8_h2) f0)) $$ Y0
        ihave Y1 := (Entails.of_eq ((oMix_ge d L fx (t := k.val) (n := 2 * k.val + 1) (by omega)).trans (oP_pos (F := F) d L v1))) $$ Y1
        icases Y1 with ⟨%f1, Y1⟩
        ihave Y1 := (Entails.of_eq (out_congr d L (off_10 L k v1).symm (out_inb L _) (k8_off10_inb L k k8_h5) f1)) $$ Y1
        sl_exec
        sl_for (laneV0 d L g4) $$ [F8_dst R6]
        case region =>
          intro (j : Fin k8_t2_loop.trips) _
          unfold laneV0
          iintro ⟨HA, %g, HB, %hl⟩
          sl_exec
          sl_step
          isplitl [HA]; · iexact HA
          iexists _; isplitl [HB]; · iexact HB
          ipureintro; exact lanes_step d L a4 a6 g4 g j _ _ hl
        · unfold laneV0
          isplitl [F8_dst]; · iexact F8_dst
          iexists _; isplitl [R6]; · iexact R6
          ipureintro; exact lanes_zero d L a4 a6 g4 _
        iintro %_ HI
        unfold laneV0
        icases HI with ⟨H4, %g6', H6, %hl6⟩
        have hl6 : Lanes d L a4 a6 g4 g6' 200 := Eq.mp (congrArg (Lanes d L a4 a6 g4 g6') trips2) hl6
        sl_exec
        sl_for (laneV1 d L g5) $$ [F9_dst R7]
        case region =>
          intro (j : Fin k8_t3_loop.trips) _
          unfold laneV1
          iintro ⟨HA, %g, HB, %hl⟩
          sl_exec
          sl_step
          isplitl [HA]; · iexact HA
          iexists _; isplitl [HB]; · iexact HB
          ipureintro; exact lanes_step' d L a5 a7 g5 g j _ _ hl
        · unfold laneV1
          isplitl [F9_dst]; · iexact F9_dst
          iexists _; isplitl [R7]; · iexact R7
          ipureintro; exact lanes_zero d L a5 a7 g5 _
        iintro %_ HI
        unfold laneV1
        icases HI with ⟨H5, %g7', H7, %hl7⟩
        have hl7 : Lanes d L a5 a7 g5 g7' 200 := Eq.mp (congrArg (Lanes d L a5 a7 g5 g7') trips3) hl7
        sl_exec
        sl_step
        isplitr; · iexact Hmw
        isplitl [HO]
        · iexists _; isplitr
          rotate_left
          · iexact HO
          ipureintro; intro p hp
          rcases Finset.mem_insert.mp hp with rfl | hp
          · exact .inr rfl
          rcases Finset.mem_insert.mp hp with rfl | hp
          · exact .inr rfl
          rcases Finset.mem_insert.mp hp with rfl | hp
          · exact .inr rfl
          rcases Finset.mem_insert.mp hp with rfl | hp
          · exact .inr rfl
          exact hW' p hp
        isplitl [HX F8_src F9_src]
        · iapply (Entails.of_eq (xSet_in (xP d L fx) k.val hk).symm)
          isplitl [F8_src]; · iapply (Entails.of_eq (xP_pos d L fx v0).symm); iexact F8_src
          isplitl [F9_src]; · iapply (Entails.of_eq (xP_pos d L fx v1).symm); iexact F9_src
          iexact HX
        isplitl [HOut F10_dst F11_dst]
        · iapply (Entails.of_eq (oSet_in (oMix d L fx (k.val + 1)) k.val hk (by omega)).symm)
          isplitl [F10_dst]; · iapply (Entails.of_eq ((oMix_lt d L fx (t := k.val + 1) (n := 2 * k.val - 2) (by omega)).trans (oQ_pos d L fx hm0.2)).symm); iexact F10_dst
          isplitl [F11_dst]
          · iapply (Entails.of_eq ((oMix_lt d L fx (t := k.val + 1) (n := 2 * k.val - 1) (by omega)).trans (oQ_pos d L fx (n := 2 * k.val - 1) (by have := hm1.2; rwa [show 2 * k.val + 1 - 2 = 2 * k.val - 1 by omega] at this))).symm)
            iapply (Entails.of_eq (congrArg (oqPiece d L fx) (show 2 * k.val + 1 - 2 = 2 * k.val - 1 by omega))); iexact F11_dst
          iapply (Entails.of_eq (oMix_core d L fx k.val)); iexact HOut
        isplitl [F8]
        · iapply (Entails.of_eq (congrArg (inSlotV d L fx a4 cc8_scratch4.sem) (show 2 * k.val + 2 = 2 * (k.val + 1) by ring)))
          iapply (fl_inV d L fx (off_6 L k v2) (k8_off6_inb L k k8_h3) v2 a4 cc8_scratch4.sem); iexists _, _
          isplitr
          rotate_left
          · iexact F8
          ipureintro; intro y; rfl
        isplitl [F10 H6]
        · iapply (Entails.of_eq (congrArg (outSlotV d L fx a6 cc8_scratch6.sem) (show 2 * k.val + 2 = 2 * (k.val + 1) by ring)))
          iapply (fl_outV d L fx (off_5 L k v0) (k8_off5_inb L k k8_h2) v0 a4 a6 cc8_scratch6.sem f0 g4 g6' hl6 hin4); iexists _
          isplitr
          rotate_left
          · isplitl [F10]; · iexact F10
            iexact H6
          ipureintro; intro y; rfl
        isplitl [F9]
        · iapply (Entails.of_eq (congrArg (inSlotV d L fx a5 cc8_scratch5.sem) (show 2 * k.val + 3 = 2 * (k.val + 1) + 1 by ring)))
          iapply (fl_inV d L fx (off_11 L k v3') (k8_off11_inb L k k8_h6) v3' a5 cc8_scratch5.sem); iexists _, _
          isplitr
          rotate_left
          · iexact F9
          ipureintro; intro y; rfl
        · iapply (Entails.of_eq (congrArg (outSlotV d L fx a7 cc8_scratch7.sem) (show 2 * k.val + 1 + 2 = 2 * (k.val + 1) + 1 by ring)))
          iapply (fl_outV d L fx (off_10 L k v1) (k8_off10_inb L k k8_h5) v1 a5 a7 cc8_scratch7.sem f1 g5 g7' hl7 hin5); iexists _
          isplitr
          rotate_left
          · isplitl [F11]; · iexact F11
            iexact H7
          ipureintro; intro y; rfl
      · by_cases h6 : k.val = 6
        · have hb : ¬ big L := fun hb => v3 (Or.inr ⟨by omega, hb⟩)
          -- trip 6 of a tile with fifteen pieces: no sixteenth piece to fetch
          have k8_h1 : k8_cond1 k = 1#1 := (cond1_iff k).mpr (by omega)
          have k8_h2 : k8_cond2 L k = 1#1 := cond2_iff L k
          have k8_h3 : k8_cond3 L k = 1#1 := (cond3_iff L k).mpr (by omega)
          have k8_h4 : k8_cond4 k = 1#1 := (cond4_iff k).mpr (by omega)
          have k8_h5 : k8_cond5 L k = 1#1 := (cond5_iff L k).mpr (by first | (unfold valid big at *; omega) | (unfold big at *; omega) | omega)
          have k8_h6 : ¬ k8_cond6 L k = 1#1 := fun h => absurd ((cond6_iff L k).mp h) (by first | (unfold valid big at *; omega) | (unfold big at *; omega) | omega)
          have v0 : valid L (2 * k.val) := by unfold valid big at *; omega
          have v1 : valid L (2 * k.val + 1) := by unfold valid big at *; omega
          have v2 : valid L (2 * k.val + 2) := by unfold valid big at *; omega
          have v3' : ¬ valid L (2 * k.val + 3) := by unfold valid big at *; omega
          have hm0 : 2 ≤ 2 * k.val ∧ valid L (2 * k.val - 2) := ⟨by omega, by unfold valid big at *; omega⟩
          have hm1 : 2 ≤ 2 * k.val + 1 ∧ valid L (2 * k.val + 1 - 2) := ⟨by omega, by unfold valid big at *; omega⟩
          ihave S8 := (Entails.of_eq (inSlotV_pos d L fx v0)) $$ S8
          icases S8 with ⟨%g4, %hin4, F8⟩
          ihave S9 := (Entails.of_eq (inSlotV_pos d L fx v1)) $$ S9
          icases S9 with ⟨%g5, %hin5, F9⟩
          ihave S10 := (Entails.of_eq (outSlotV_pos d L fx hm0)) $$ S10
          icases S10 with ⟨%g6, F10, R6⟩
          ihave S11 := (Entails.of_eq (outSlotV_pos d L fx hm1)) $$ S11
          icases S11 with ⟨%g7, F11, R7⟩
          ihave HX := (Entails.of_eq (xSet_out (xP d L fx) k.val hk)) $$ HX
          icases HX with ⟨X2, -, HX⟩
          ihave X2 := (Entails.of_eq (xP_pos d L fx v2)) $$ X2
          ihave X2 := (Entails.of_eq (in_congr d L (off_6 L k v2).symm (in_inb L _) (k8_off6_inb L k k8_h3) fx)) $$ X2
          ihave HOut := (Entails.of_eq (oSet_out (oMix d L fx k.val) k.val hk)) $$ HOut
          icases HOut with ⟨Y0, Y1, HOut⟩
          ihave Y0 := (Entails.of_eq ((oMix_ge d L fx (t := k.val) (n := 2 * k.val) (by omega)).trans (oP_pos (F := F) d L v0))) $$ Y0
          icases Y0 with ⟨%f0, Y0⟩
          ihave Y0 := (Entails.of_eq (out_congr d L (off_5 L k v0).symm (out_inb L _) (k8_off5_inb L k k8_h2) f0)) $$ Y0
          ihave Y1 := (Entails.of_eq ((oMix_ge d L fx (t := k.val) (n := 2 * k.val + 1) (by omega)).trans (oP_pos (F := F) d L v1))) $$ Y1
          icases Y1 with ⟨%f1, Y1⟩
          ihave Y1 := (Entails.of_eq (out_congr d L (off_10 L k v1).symm (out_inb L _) (k8_off10_inb L k k8_h5) f1)) $$ Y1
          sl_exec
          sl_for (laneV0 d L g4) $$ [F8_dst R6]
          case region =>
            intro (j : Fin k8_t2_loop.trips) _
            unfold laneV0
            iintro ⟨HA, %g, HB, %hl⟩
            sl_exec
            sl_step
            isplitl [HA]; · iexact HA
            iexists _; isplitl [HB]; · iexact HB
            ipureintro; exact lanes_step d L a4 a6 g4 g j _ _ hl
          · unfold laneV0
            isplitl [F8_dst]; · iexact F8_dst
            iexists _; isplitl [R6]; · iexact R6
            ipureintro; exact lanes_zero d L a4 a6 g4 _
          iintro %_ HI
          unfold laneV0
          icases HI with ⟨H4, %g6', H6, %hl6⟩
          have hl6 : Lanes d L a4 a6 g4 g6' 200 := Eq.mp (congrArg (Lanes d L a4 a6 g4 g6') trips2) hl6
          sl_exec
          sl_for (laneV1 d L g5) $$ [F9_dst R7]
          case region =>
            intro (j : Fin k8_t3_loop.trips) _
            unfold laneV1
            iintro ⟨HA, %g, HB, %hl⟩
            sl_exec
            sl_step
            isplitl [HA]; · iexact HA
            iexists _; isplitl [HB]; · iexact HB
            ipureintro; exact lanes_step' d L a5 a7 g5 g j _ _ hl
          · unfold laneV1
            isplitl [F9_dst]; · iexact F9_dst
            iexists _; isplitl [R7]; · iexact R7
            ipureintro; exact lanes_zero d L a5 a7 g5 _
          iintro %_ HI
          unfold laneV1
          icases HI with ⟨H5, %g7', H7, %hl7⟩
          have hl7 : Lanes d L a5 a7 g5 g7' 200 := Eq.mp (congrArg (Lanes d L a5 a7 g5 g7') trips3) hl7
          sl_exec
          sl_step
          isplitr; · iexact Hmw
          isplitl [HO]
          · iexists _; isplitr
            rotate_left
            · iexact HO
            ipureintro; intro p hp
            rcases Finset.mem_insert.mp hp with rfl | hp
            · exact .inr rfl
            rcases Finset.mem_insert.mp hp with rfl | hp
            · exact .inr rfl
            rcases Finset.mem_insert.mp hp with rfl | hp
            · exact .inr rfl
            rcases Finset.mem_insert.mp hp with rfl | hp
            · exact .inr rfl
            exact hW' p hp
          isplitl [HX F8_src F9_src]
          · iapply (Entails.of_eq (xSet_in (xP d L fx) k.val hk).symm)
            isplitl [F8_src]; · iapply (Entails.of_eq (xP_pos d L fx v0).symm); iexact F8_src
            isplitl [F9_src]; · iapply (Entails.of_eq (xP_pos d L fx v1).symm); iexact F9_src
            iexact HX
          isplitl [HOut F10_dst F11_dst]
          · iapply (Entails.of_eq (oSet_in (oMix d L fx (k.val + 1)) k.val hk (by omega)).symm)
            isplitl [F10_dst]; · iapply (Entails.of_eq ((oMix_lt d L fx (t := k.val + 1) (n := 2 * k.val - 2) (by omega)).trans (oQ_pos d L fx hm0.2)).symm); iexact F10_dst
            isplitl [F11_dst]
            · iapply (Entails.of_eq ((oMix_lt d L fx (t := k.val + 1) (n := 2 * k.val - 1) (by omega)).trans (oQ_pos d L fx (n := 2 * k.val - 1) (by have := hm1.2; rwa [show 2 * k.val + 1 - 2 = 2 * k.val - 1 by omega] at this))).symm)
              iapply (Entails.of_eq (congrArg (oqPiece d L fx) (show 2 * k.val + 1 - 2 = 2 * k.val - 1 by omega))); iexact F11_dst
            iapply (Entails.of_eq (oMix_core d L fx k.val)); iexact HOut
          isplitl [F8]
          · iapply (Entails.of_eq (congrArg (inSlotV d L fx a4 cc8_scratch4.sem) (show 2 * k.val + 2 = 2 * (k.val + 1) by ring)))
            iapply (fl_inV d L fx (off_6 L k v2) (k8_off6_inb L k k8_h3) v2 a4 cc8_scratch4.sem); iexists _, _
            isplitr
            rotate_left
            · iexact F8
            ipureintro; intro y; rfl
          isplitl [F10 H6]
          · iapply (Entails.of_eq (congrArg (outSlotV d L fx a6 cc8_scratch6.sem) (show 2 * k.val + 2 = 2 * (k.val + 1) by ring)))
            iapply (fl_outV d L fx (off_5 L k v0) (k8_off5_inb L k k8_h2) v0 a4 a6 cc8_scratch6.sem f0 g4 g6' hl6 hin4); iexists _
            isplitr
            rotate_left
            · isplitl [F10]; · iexact F10
              iexact H6
            ipureintro; intro y; rfl
          isplitl [H5 F9]
          · iapply (Entails.of_eq (congrArg (inSlotV d L fx a5 cc8_scratch5.sem) (show 2 * k.val + 3 = 2 * (k.val + 1) + 1 by ring)))
            iapply (Entails.of_eq (inSlotV_neg d L fx v3').symm)
            isplitl [H5]; · iexists _; iexact H5
            iexact F9
          · iapply (Entails.of_eq (congrArg (outSlotV d L fx a7 cc8_scratch7.sem) (show 2 * k.val + 1 + 2 = 2 * (k.val + 1) + 1 by ring)))
            iapply (fl_outV d L fx (off_10 L k v1) (k8_off10_inb L k k8_h5) v1 a5 a7 cc8_scratch7.sem f1 g5 g7' hl7 hin5); iexists _
            isplitr
            rotate_left
            · isplitl [F11]; · iexact F11
              iexact H7
            ipureintro; intro y; rfl
        · have h7 : k.val = 7 := by unfold valid at v3; omega
          by_cases hb : big L
          · -- the last trip of a tile with sixteen pieces: nothing more to fetch
            have k8_h1 : k8_cond1 k = 1#1 := (cond1_iff k).mpr (by omega)
            have k8_h2 : k8_cond2 L k = 1#1 := cond2_iff L k
            have k8_h3 : ¬ k8_cond3 L k = 1#1 := fun h => absurd ((cond3_iff L k).mp h) (by omega)
            have k8_h4 : k8_cond4 k = 1#1 := (cond4_iff k).mpr (by omega)
            have k8_h5 : k8_cond5 L k = 1#1 := (cond5_iff L k).mpr (by first | (unfold valid big at *; omega) | (unfold big at *; omega) | omega)
            have k8_h6 : ¬ k8_cond6 L k = 1#1 := fun h => absurd ((cond6_iff L k).mp h) (by first | (unfold valid big at *; omega) | (unfold big at *; omega) | omega)
            have v0 : valid L (2 * k.val) := by unfold valid big at *; omega
            have v1 : valid L (2 * k.val + 1) := by unfold valid big at *; omega
            have v2 : ¬ valid L (2 * k.val + 2) := by unfold valid big at *; omega
            have v3' : ¬ valid L (2 * k.val + 3) := by unfold valid big at *; omega
            have hm0 : 2 ≤ 2 * k.val ∧ valid L (2 * k.val - 2) := ⟨by omega, by unfold valid big at *; omega⟩
            have hm1 : 2 ≤ 2 * k.val + 1 ∧ valid L (2 * k.val + 1 - 2) := ⟨by omega, by unfold valid big at *; omega⟩
            ihave S8 := (Entails.of_eq (inSlotV_pos d L fx v0)) $$ S8
            icases S8 with ⟨%g4, %hin4, F8⟩
            ihave S9 := (Entails.of_eq (inSlotV_pos d L fx v1)) $$ S9
            icases S9 with ⟨%g5, %hin5, F9⟩
            ihave S10 := (Entails.of_eq (outSlotV_pos d L fx hm0)) $$ S10
            icases S10 with ⟨%g6, F10, R6⟩
            ihave S11 := (Entails.of_eq (outSlotV_pos d L fx hm1)) $$ S11
            icases S11 with ⟨%g7, F11, R7⟩
            ihave HX := (Entails.of_eq (xSet_out (xP d L fx) k.val hk)) $$ HX
            icases HX with ⟨-, -, HX⟩
            ihave HOut := (Entails.of_eq (oSet_out (oMix d L fx k.val) k.val hk)) $$ HOut
            icases HOut with ⟨Y0, Y1, HOut⟩
            ihave Y0 := (Entails.of_eq ((oMix_ge d L fx (t := k.val) (n := 2 * k.val) (by omega)).trans (oP_pos (F := F) d L v0))) $$ Y0
            icases Y0 with ⟨%f0, Y0⟩
            ihave Y0 := (Entails.of_eq (out_congr d L (off_5 L k v0).symm (out_inb L _) (k8_off5_inb L k k8_h2) f0)) $$ Y0
            ihave Y1 := (Entails.of_eq ((oMix_ge d L fx (t := k.val) (n := 2 * k.val + 1) (by omega)).trans (oP_pos (F := F) d L v1))) $$ Y1
            icases Y1 with ⟨%f1, Y1⟩
            ihave Y1 := (Entails.of_eq (out_congr d L (off_10 L k v1).symm (out_inb L _) (k8_off10_inb L k k8_h5) f1)) $$ Y1
            sl_exec
            sl_for (laneV0 d L g4) $$ [F8_dst R6]
            case region =>
              intro (j : Fin k8_t2_loop.trips) _
              unfold laneV0
              iintro ⟨HA, %g, HB, %hl⟩
              sl_exec
              sl_step
              isplitl [HA]; · iexact HA
              iexists _; isplitl [HB]; · iexact HB
              ipureintro; exact lanes_step d L a4 a6 g4 g j _ _ hl
            · unfold laneV0
              isplitl [F8_dst]; · iexact F8_dst
              iexists _; isplitl [R6]; · iexact R6
              ipureintro; exact lanes_zero d L a4 a6 g4 _
            iintro %_ HI
            unfold laneV0
            icases HI with ⟨H4, %g6', H6, %hl6⟩
            have hl6 : Lanes d L a4 a6 g4 g6' 200 := Eq.mp (congrArg (Lanes d L a4 a6 g4 g6') trips2) hl6
            sl_exec
            sl_for (laneV1 d L g5) $$ [F9_dst R7]
            case region =>
              intro (j : Fin k8_t3_loop.trips) _
              unfold laneV1
              iintro ⟨HA, %g, HB, %hl⟩
              sl_exec
              sl_step
              isplitl [HA]; · iexact HA
              iexists _; isplitl [HB]; · iexact HB
              ipureintro; exact lanes_step' d L a5 a7 g5 g j _ _ hl
            · unfold laneV1
              isplitl [F9_dst]; · iexact F9_dst
              iexists _; isplitl [R7]; · iexact R7
              ipureintro; exact lanes_zero d L a5 a7 g5 _
            iintro %_ HI
            unfold laneV1
            icases HI with ⟨H5, %g7', H7, %hl7⟩
            have hl7 : Lanes d L a5 a7 g5 g7' 200 := Eq.mp (congrArg (Lanes d L a5 a7 g5 g7') trips3) hl7
            sl_exec
            sl_step
            isplitr; · iexact Hmw
            isplitl [HO]
            · iexists _; isplitr
              rotate_left
              · iexact HO
              ipureintro; intro p hp
              rcases Finset.mem_insert.mp hp with rfl | hp
              · exact .inr rfl
              rcases Finset.mem_insert.mp hp with rfl | hp
              · exact .inr rfl
              rcases Finset.mem_insert.mp hp with rfl | hp
              · exact .inr rfl
              rcases Finset.mem_insert.mp hp with rfl | hp
              · exact .inr rfl
              exact hW' p hp
            isplitl [HX F8_src F9_src]
            · iapply (Entails.of_eq (xSet_in (xP d L fx) k.val hk).symm)
              isplitl [F8_src]; · iapply (Entails.of_eq (xP_pos d L fx v0).symm); iexact F8_src
              isplitl [F9_src]; · iapply (Entails.of_eq (xP_pos d L fx v1).symm); iexact F9_src
              iexact HX
            isplitl [HOut F10_dst F11_dst]
            · iapply (Entails.of_eq (oSet_in (oMix d L fx (k.val + 1)) k.val hk (by omega)).symm)
              isplitl [F10_dst]; · iapply (Entails.of_eq ((oMix_lt d L fx (t := k.val + 1) (n := 2 * k.val - 2) (by omega)).trans (oQ_pos d L fx hm0.2)).symm); iexact F10_dst
              isplitl [F11_dst]
              · iapply (Entails.of_eq ((oMix_lt d L fx (t := k.val + 1) (n := 2 * k.val - 1) (by omega)).trans (oQ_pos d L fx (n := 2 * k.val - 1) (by have := hm1.2; rwa [show 2 * k.val + 1 - 2 = 2 * k.val - 1 by omega] at this))).symm)
                iapply (Entails.of_eq (congrArg (oqPiece d L fx) (show 2 * k.val + 1 - 2 = 2 * k.val - 1 by omega))); iexact F11_dst
              iapply (Entails.of_eq (oMix_core d L fx k.val)); iexact HOut
            isplitl [H4 F8]
            · iapply (Entails.of_eq (congrArg (inSlotV d L fx a4 cc8_scratch4.sem) (show 2 * k.val + 2 = 2 * (k.val + 1) by ring)))
              iapply (Entails.of_eq (inSlotV_neg d L fx v2).symm)
              isplitl [H4]; · iexists _; iexact H4
              iexact F8
            isplitl [F10 H6]
            · iapply (Entails.of_eq (congrArg (outSlotV d L fx a6 cc8_scratch6.sem) (show 2 * k.val + 2 = 2 * (k.val + 1) by ring)))
              iapply (fl_outV d L fx (off_5 L k v0) (k8_off5_inb L k k8_h2) v0 a4 a6 cc8_scratch6.sem f0 g4 g6' hl6 hin4); iexists _
              isplitr
              rotate_left
              · isplitl [F10]; · iexact F10
                iexact H6
              ipureintro; intro y; rfl
            isplitl [H5 F9]
            · iapply (Entails.of_eq (congrArg (inSlotV d L fx a5 cc8_scratch5.sem) (show 2 * k.val + 3 = 2 * (k.val + 1) + 1 by ring)))
              iapply (Entails.of_eq (inSlotV_neg d L fx v3').symm)
              isplitl [H5]; · iexists _; iexact H5
              iexact F9
            · iapply (Entails.of_eq (congrArg (outSlotV d L fx a7 cc8_scratch7.sem) (show 2 * k.val + 1 + 2 = 2 * (k.val + 1) + 1 by ring)))
              iapply (fl_outV d L fx (off_10 L k v1) (k8_off10_inb L k k8_h5) v1 a5 a7 cc8_scratch7.sem f1 g5 g7' hl7 hin5); iexists _
              isplitr
              rotate_left
              · isplitl [F11]; · iexact F11
                iexact H7
              ipureintro; intro y; rfl
          · -- the last trip of a tile with fifteen pieces: the second slot only drains
            have k8_h1 : k8_cond1 k = 1#1 := (cond1_iff k).mpr (by omega)
            have k8_h2 : k8_cond2 L k = 1#1 := cond2_iff L k
            have k8_h3 : ¬ k8_cond3 L k = 1#1 := fun h => absurd ((cond3_iff L k).mp h) (by omega)
            have k8_h4 : k8_cond4 k = 1#1 := (cond4_iff k).mpr (by omega)
            have k8_h5 : ¬ k8_cond5 L k = 1#1 := fun h => absurd ((cond5_iff L k).mp h) (by first | (unfold valid big at *; omega) | (unfold big at *; omega) | omega)
            have k8_h6 : ¬ k8_cond6 L k = 1#1 := fun h => absurd ((cond6_iff L k).mp h) (by first | (unfold valid big at *; omega) | (unfold big at *; omega) | omega)
            have v0 : valid L (2 * k.val) := by unfold valid big at *; omega
            have v1 : ¬ valid L (2 * k.val + 1) := by unfold valid big at *; omega
            have v2 : ¬ valid L (2 * k.val + 2) := by unfold valid big at *; omega
            have v3' : ¬ valid L (2 * k.val + 3) := by unfold valid big at *; omega
            have hm0 : 2 ≤ 2 * k.val ∧ valid L (2 * k.val - 2) := ⟨by omega, by unfold valid big at *; omega⟩
            have hm1 : 2 ≤ 2 * k.val + 1 ∧ valid L (2 * k.val + 1 - 2) := ⟨by omega, by unfold valid big at *; omega⟩
            ihave S8 := (Entails.of_eq (inSlotV_pos d L fx v0)) $$ S8
            icases S8 with ⟨%g4, %hin4, F8⟩
            ihave S9 := (Entails.of_eq (inSlotV_neg d L fx v1)) $$ S9
            icases S9 with ⟨⟨%g5, H5⟩, F9⟩
            ihave S10 := (Entails.of_eq (outSlotV_pos d L fx hm0)) $$ S10
            icases S10 with ⟨%g6, F10, R6⟩
            ihave S11 := (Entails.of_eq (outSlotV_pos d L fx hm1)) $$ S11
            icases S11 with ⟨%g7, F11, R7⟩
            ihave HX := (Entails.of_eq (xSet_out (xP d L fx) k.val hk)) $$ HX
            icases HX with ⟨-, -, HX⟩
            ihave HOut := (Entails.of_eq (oSet_out (oMix d L fx k.val) k.val hk)) $$ HOut
            icases HOut with ⟨Y0, -, HOut⟩
            ihave Y0 := (Entails.of_eq ((oMix_ge d L fx (t := k.val) (n := 2 * k.val) (by omega)).trans (oP_pos (F := F) d L v0))) $$ Y0
            icases Y0 with ⟨%f0, Y0⟩
            ihave Y0 := (Entails.of_eq (out_congr d L (off_5 L k v0).symm (out_inb L _) (k8_off5_inb L k k8_h2) f0)) $$ Y0
            sl_exec
            sl_for (laneV0 d L g4) $$ [F8_dst R6]
            case region =>
              intro (j : Fin k8_t2_loop.trips) _
              unfold laneV0
              iintro ⟨HA, %g, HB, %hl⟩
              sl_exec
              sl_step
              isplitl [HA]; · iexact HA
              iexists _; isplitl [HB]; · iexact HB
              ipureintro; exact lanes_step d L a4 a6 g4 g j _ _ hl
            · unfold laneV0
              isplitl [F8_dst]; · iexact F8_dst
              iexists _; isplitl [R6]; · iexact R6
              ipureintro; exact lanes_zero d L a4 a6 g4 _
            iintro %_ HI
            unfold laneV0
            icases HI with ⟨H4, %g6', H6, %hl6⟩
            have hl6 : Lanes d L a4 a6 g4 g6' 200 := Eq.mp (congrArg (Lanes d L a4 a6 g4 g6') trips2) hl6
            sl_exec
            sl_step
            isplitr; · iexact Hmw
            isplitl [HO]
            · iexists _; isplitr
              rotate_left
              · iexact HO
              ipureintro; intro p hp
              rcases Finset.mem_insert.mp hp with rfl | hp
              · exact .inr rfl
              rcases Finset.mem_insert.mp hp with rfl | hp
              · exact .inr rfl
              rcases Finset.mem_insert.mp hp with rfl | hp
              · exact .inr rfl
              exact hW' p hp
            isplitl [HX F8_src]
            · iapply (Entails.of_eq (xSet_in (xP d L fx) k.val hk).symm)
              isplitl [F8_src]; · iapply (Entails.of_eq (xP_pos d L fx v0).symm); iexact F8_src
              isplitr; · iapply (Entails.of_eq (xP_neg d L fx v1).symm); iempintro
              iexact HX
            isplitl [HOut F10_dst F11_dst]
            · iapply (Entails.of_eq (oSet_in (oMix d L fx (k.val + 1)) k.val hk (by omega)).symm)
              isplitl [F10_dst]; · iapply (Entails.of_eq ((oMix_lt d L fx (t := k.val + 1) (n := 2 * k.val - 2) (by omega)).trans (oQ_pos d L fx hm0.2)).symm); iexact F10_dst
              isplitl [F11_dst]
              · iapply (Entails.of_eq ((oMix_lt d L fx (t := k.val + 1) (n := 2 * k.val - 1) (by omega)).trans (oQ_pos d L fx (n := 2 * k.val - 1) (by have := hm1.2; rwa [show 2 * k.val + 1 - 2 = 2 * k.val - 1 by omega] at this))).symm)
                iapply (Entails.of_eq (congrArg (oqPiece d L fx) (show 2 * k.val + 1 - 2 = 2 * k.val - 1 by omega))); iexact F11_dst
              iapply (Entails.of_eq (oMix_core d L fx k.val)); iexact HOut
            isplitl [H4 F8]
            · iapply (Entails.of_eq (congrArg (inSlotV d L fx a4 cc8_scratch4.sem) (show 2 * k.val + 2 = 2 * (k.val + 1) by ring)))
              iapply (Entails.of_eq (inSlotV_neg d L fx v2).symm)
              isplitl [H4]; · iexists _; iexact H4
              iexact F8
            isplitl [F10 H6]
            · iapply (Entails.of_eq (congrArg (outSlotV d L fx a6 cc8_scratch6.sem) (show 2 * k.val + 2 = 2 * (k.val + 1) by ring)))
              iapply (fl_outV d L fx (off_5 L k v0) (k8_off5_inb L k k8_h2) v0 a4 a6 cc8_scratch6.sem f0 g4 g6' hl6 hin4); iexists _
              isplitr
              rotate_left
              · isplitl [F10]; · iexact F10
                iexact H6
              ipureintro; intro y; rfl
            isplitl [H5 F9]
            · iapply (Entails.of_eq (congrArg (inSlotV d L fx a5 cc8_scratch5.sem) (show 2 * k.val + 3 = 2 * (k.val + 1) + 1 by ring)))
              iapply (Entails.of_eq (inSlotV_neg d L fx v3').symm)
              isplitl [H5]; · iexists _; iexact H5
              iexact F9
            · iapply (Entails.of_eq (outSlotV_neg d L fx (m := 2 * (k.val + 1) + 1) (by intro h; apply v1; have := h.2; rwa [show 2 * (k.val + 1) + 1 - 2 = 2 * k.val + 1 by omega] at this)).symm)
              isplitl [R7]; · iexists _; iexact R7
              iexact F11
    · have hk0 : k.val = 0 := by omega
      -- the first trip: nothing to drain
      have k8_h1 : ¬ k8_cond1 k = 1#1 := fun h => absurd ((cond1_iff k).mp h) (by omega)
      have k8_h2 : k8_cond2 L k = 1#1 := cond2_iff L k
      have k8_h3 : k8_cond3 L k = 1#1 := (cond3_iff L k).mpr (by omega)
      have k8_h4 : ¬ k8_cond4 k = 1#1 := fun h => absurd ((cond4_iff k).mp h) (by omega)
      have k8_h5 : k8_cond5 L k = 1#1 := (cond5_iff L k).mpr (by first | (unfold valid big at *; omega) | (unfold big at *; omega) | omega)
      have k8_h6 : k8_cond6 L k = 1#1 := (cond6_iff L k).mpr (by first | (unfold valid big at *; omega) | (unfold big at *; omega) | omega)
      have v0 : valid L (2 * k.val) := by unfold valid big at *; omega
      have v1 : valid L (2 * k.val + 1) := by unfold valid big at *; omega
      have v2 : valid L (2 * k.val + 2) := by unfold valid big at *; omega
      have v3' : valid L (2 * k.val + 3) := by unfold valid big at *; omega
      have hm0 : ¬ (2 ≤ 2 * k.val ∧ valid L (2 * k.val - 2)) := by omega
      have hm1 : ¬ (2 ≤ 2 * k.val + 1 ∧ valid L (2 * k.val + 1 - 2)) := by omega
      ihave S8 := (Entails.of_eq (inSlotV_pos d L fx v0)) $$ S8
      icases S8 with ⟨%g4, %hin4, F8⟩
      ihave S9 := (Entails.of_eq (inSlotV_pos d L fx v1)) $$ S9
      icases S9 with ⟨%g5, %hin5, F9⟩
      ihave S10 := (Entails.of_eq (outSlotV_neg d L fx hm0)) $$ S10
      icases S10 with ⟨⟨%g6, R6⟩, F10⟩
      ihave S11 := (Entails.of_eq (outSlotV_neg d L fx hm1)) $$ S11
      icases S11 with ⟨⟨%g7, R7⟩, F11⟩
      ihave HX := (Entails.of_eq (xSet_out (xP d L fx) k.val hk)) $$ HX
      icases HX with ⟨X2, X3, HX⟩
      ihave X2 := (Entails.of_eq (xP_pos d L fx v2)) $$ X2
      ihave X2 := (Entails.of_eq (in_congr d L (off_6 L k v2).symm (in_inb L _) (k8_off6_inb L k k8_h3) fx)) $$ X2
      ihave X3 := (Entails.of_eq (xP_pos d L fx v3')) $$ X3
      ihave X3 := (Entails.of_eq (in_congr d L (off_11 L k v3').symm (in_inb L _) (k8_off11_inb L k k8_h6) fx)) $$ X3
      ihave HOut := (Entails.of_eq (oSet_out (oMix d L fx k.val) k.val hk)) $$ HOut
      icases HOut with ⟨Y0, Y1, HOut⟩
      ihave Y0 := (Entails.of_eq ((oMix_ge d L fx (t := k.val) (n := 2 * k.val) (by omega)).trans (oP_pos (F := F) d L v0))) $$ Y0
      icases Y0 with ⟨%f0, Y0⟩
      ihave Y0 := (Entails.of_eq (out_congr d L (off_5 L k v0).symm (out_inb L _) (k8_off5_inb L k k8_h2) f0)) $$ Y0
      ihave Y1 := (Entails.of_eq ((oMix_ge d L fx (t := k.val) (n := 2 * k.val + 1) (by omega)).trans (oP_pos (F := F) d L v1))) $$ Y1
      icases Y1 with ⟨%f1, Y1⟩
      ihave Y1 := (Entails.of_eq (out_congr d L (off_10 L k v1).symm (out_inb L _) (k8_off10_inb L k k8_h5) f1)) $$ Y1
      sl_exec
      sl_for (laneV0 d L g4) $$ [F8_dst R6]
      case region =>
        intro (j : Fin k8_t2_loop.trips) _
        unfold laneV0
        iintro ⟨HA, %g, HB, %hl⟩
        sl_exec
        sl_step
        isplitl [HA]; · iexact HA
        iexists _; isplitl [HB]; · iexact HB
        ipureintro; exact lanes_step d L a4 a6 g4 g j _ _ hl
      · unfold laneV0
        isplitl [F8_dst]; · iexact F8_dst
        iexists _; isplitl [R6]; · iexact R6
        ipureintro; exact lanes_zero d L a4 a6 g4 _
      iintro %_ HI
      unfold laneV0
      icases HI with ⟨H4, %g6', H6, %hl6⟩
      have hl6 : Lanes d L a4 a6 g4 g6' 200 := Eq.mp (congrArg (Lanes d L a4 a6 g4 g6') trips2) hl6
      sl_exec
      sl_for (laneV1 d L g5) $$ [F9_dst R7]
      case region =>
        intro (j : Fin k8_t3_loop.trips) _
        unfold laneV1
        iintro ⟨HA, %g, HB, %hl⟩
        sl_exec
        sl_step
        isplitl [HA]; · iexact HA
        iexists _; isplitl [HB]; · iexact HB
        ipureintro; exact lanes_step' d L a5 a7 g5 g j _ _ hl
      · unfold laneV1
        isplitl [F9_dst]; · iexact F9_dst
        iexists _; isplitl [R7]; · iexact R7
        ipureintro; exact lanes_zero d L a5 a7 g5 _
      iintro %_ HI
      unfold laneV1
      icases HI with ⟨H5, %g7', H7, %hl7⟩
      have hl7 : Lanes d L a5 a7 g5 g7' 200 := Eq.mp (congrArg (Lanes d L a5 a7 g5 g7') trips3) hl7
      sl_exec
      sl_step
      isplitr; · iexact Hmw
      isplitl [HO]
      · iexists _; isplitr
        rotate_left
        · iexact HO
        ipureintro; intro p hp
        rcases Finset.mem_insert.mp hp with rfl | hp
        · exact .inr rfl
        rcases Finset.mem_insert.mp hp with rfl | hp
        · exact .inr rfl
        exact hW' p hp
      isplitl [HX F8_src F9_src]
      · iapply (Entails.of_eq (xSet_in (xP d L fx) k.val hk).symm)
        isplitl [F8_src]; · iapply (Entails.of_eq (xP_pos d L fx v0).symm); iexact F8_src
        isplitl [F9_src]; · iapply (Entails.of_eq (xP_pos d L fx v1).symm); iexact F9_src
        iexact HX
      isplitl [HOut]
      · iapply (Entails.of_eq (congrArg (fun s => bigSep s (oMix d L fx (k.val + 1))) (show oCore k.val = oSet (k.val + 1) by rw [hk0]; decide)))
        iapply (Entails.of_eq (oMix_core d L fx k.val)); iexact HOut
      isplitl [F8]
      · iapply (Entails.of_eq (congrArg (inSlotV d L fx a4 cc8_scratch4.sem) (show 2 * k.val + 2 = 2 * (k.val + 1) by ring)))
        iapply (fl_inV d L fx (off_6 L k v2) (k8_off6_inb L k k8_h3) v2 a4 cc8_scratch4.sem); iexists _, _
        isplitr
        rotate_left
        · iexact F8
        ipureintro; intro y; rfl
      isplitl [F10 H6]
      · iapply (Entails.of_eq (congrArg (outSlotV d L fx a6 cc8_scratch6.sem) (show 2 * k.val + 2 = 2 * (k.val + 1) by ring)))
        iapply (fl_outV d L fx (off_5 L k v0) (k8_off5_inb L k k8_h2) v0 a4 a6 cc8_scratch6.sem f0 g4 g6' hl6 hin4); iexists _
        isplitr
        rotate_left
        · isplitl [F10]; · iexact F10
          iexact H6
        ipureintro; intro y; rfl
      isplitl [F9]
      · iapply (Entails.of_eq (congrArg (inSlotV d L fx a5 cc8_scratch5.sem) (show 2 * k.val + 3 = 2 * (k.val + 1) + 1 by ring)))
        iapply (fl_inV d L fx (off_11 L k v3') (k8_off11_inb L k k8_h6) v3' a5 cc8_scratch5.sem); iexists _, _
        isplitr
        rotate_left
        · iexact F9
        ipureintro; intro y; rfl
      · iapply (Entails.of_eq (congrArg (outSlotV d L fx a7 cc8_scratch7.sem) (show 2 * k.val + 1 + 2 = 2 * (k.val + 1) + 1 by ring)))
        iapply (fl_outV d L fx (off_10 L k v1) (k8_off10_inb L k k8_h5) v1 a5 a7 cc8_scratch7.sem f1 g5 g7' hl7 hin5); iexists _
        isplitr
        rotate_left
        · isplitl [F11]; · iexact F11
          iexact H7
        ipureintro; intro y; rfl
  · unfold invV
    isplitr; · iexact Hmw
    isplitl [HO]
    · iexists W; isplitr
      · ipureintro; exact fun p hp => .inl hp
      · iexact HO
    isplitl [HX]; · iexact HX
    isplitl [HOut]; · iapply (Entails.of_eq (oMix_zero d L fx).symm); iexact HOut
    isplitl [S8]; · iexact S8
    isplitl [H6 Hs10]
    · rw [outSlotV_neg d L fx (by omega)]; isplitl [H6]; · iexists _; iexact H6
      iexact Hs10
    isplitl [S9]; · iexact S9
    rw [outSlotV_neg d L fx (by omega)]; isplitl [H7]; · iexists _; iexact H7
    iexact Hs11
  iintro %acc' HI
  ihave HI := (Entails.of_eq (congrArg (fun t => invV d L O W fx t acc') trips1)) $$ HI
  unfold invV
  icases HI with ⟨-, ⟨%W', %hW', HO⟩, HX, HOut, S8, S10, S9, S11⟩
  have nv16 : ¬ valid L (2 * 8) := by unfold valid; omega
  have nv17 : ¬ valid L (2 * 8 + 1) := by unfold valid; omega
  have hm14 : 2 ≤ 2 * 8 ∧ valid L (2 * 8 - 2) := ⟨by omega, Or.inl (by omega)⟩
  ihave S8 := (Entails.of_eq (inSlotV_neg d L fx nv16)) $$ S8
  icases S8 with ⟨⟨%g4', H4⟩, Hs8⟩
  ihave S9 := (Entails.of_eq (inSlotV_neg d L fx nv17)) $$ S9
  icases S9 with ⟨⟨%g5', H5⟩, Hs9⟩
  ihave S10 := (Entails.of_eq (outSlotV_pos d L fx hm14)) $$ S10
  icases S10 with ⟨%g6', F10, R6⟩
  by_cases hb : big L
  · have k8_h8 : k8_cond8 L = 1#1 := (cond8_iff L).mpr hb
    have hm15 : 2 ≤ 2 * 8 + 1 ∧ valid L (2 * 8 + 1 - 2) := ⟨by omega, Or.inr ⟨by omega, hb⟩⟩
    ihave S11 := (Entails.of_eq (outSlotV_pos d L fx hm15)) $$ S11
    icases S11 with ⟨%g7', F11, R7⟩
    sl_exec
    sl_step
    isplitl [HX]; · iapply (xRange_end d L fx); iexact HX
    isplitl [HOut F10_dst F11_dst]
    · iapply (Entails.of_eq (oRange_end (oQ d L fx)).symm)
      isplitl [F10_dst]; · iapply (Entails.of_eq (oQ_pos d L fx hm14.2).symm); iexact F10_dst
      isplitl [F11_dst]; · iapply (Entails.of_eq (oQ_pos d L fx hm15.2).symm); iexact F11_dst
      iapply (Entails.of_eq (oMix_end d L fx)); iexact HOut
    isplitl [H4]; · iexists _; iexact H4
    isplitl [H5]; · iexists _; iexact H5
    isplitl [R6]; · iexists _; iexact R6
    isplitl [R7]; · iexists _; iexact R7
    isplitl [Hs8]; · iexact Hs8
    isplitl [Hs9]; · iexact Hs9
    isplitl [F10]; · iexact F10
    isplitl [F11]; · iexact F11
    isplitl [HO]
    · iexists _; isplitr
      rotate_left
      · iexact HO
      ipureintro; intro p hp
      rcases Finset.mem_insert.mp hp with rfl | hp
      · exact .inr rfl
      rcases Finset.mem_insert.mp hp with rfl | hp
      · exact .inr rfl
      exact hW' p hp
    iexact HR
  · have k8_h8 : ¬ k8_cond8 L = 1#1 := fun h => hb ((cond8_iff L).mp h)
    have hm15 : ¬ (2 ≤ 2 * 8 + 1 ∧ valid L (2 * 8 + 1 - 2)) := by intro h; have := h.2; unfold valid at this; omega
    ihave S11 := (Entails.of_eq (outSlotV_neg d L fx hm15)) $$ S11
    icases S11 with ⟨⟨%g7', R7⟩, F11⟩
    sl_exec
    sl_step
    isplitl [HX]; · iapply (xRange_end d L fx); iexact HX
    isplitl [HOut F10_dst]
    · iapply (Entails.of_eq (oRange_end (oQ d L fx)).symm)
      isplitl [F10_dst]; · iapply (Entails.of_eq (oQ_pos d L fx hm14.2).symm); iexact F10_dst
      isplitr; · iapply (Entails.of_eq (oQ_neg d L fx (n := 15) (by unfold valid; omega)).symm); iempintro
      iapply (Entails.of_eq (oMix_end d L fx)); iexact HOut
    isplitl [H4]; · iexists _; iexact H4
    isplitl [H5]; · iexists _; iexact H5
    isplitl [R6]; · iexists _; iexact R6
    isplitl [R7]; · iexists _; iexact R7
    isplitl [Hs8]; · iexact Hs8
    isplitl [Hs9]; · iexact Hs9
    isplitl [F10]; · iexact F10
    isplitl [F11]; · iexact F11
    isplitl [HO]
    · iexists _; isplitr
      rotate_left
      · iexact HO
      ipureintro; intro p hp
      rcases Finset.mem_insert.mp hp with rfl | hp
      · exact .inr rfl
      exact hW' p hp
    iexact HR

/-! The subcore's scoped storage: the four staging buffers and the four semaphores of this call, and the rest. -/

abbrev c8 : GSem nD τ sig := (thr d L, SemLoc.dma cc8_scratch4.sem)
abbrev c9 : GSem nD τ sig := (thr d L, SemLoc.dma cc8_scratch5.sem)
abbrev c10 : GSem nD τ sig := (thr d L, SemLoc.dma cc8_scratch6.sem)
abbrev c11 : GSem nD τ sig := (thr d L, SemLoc.dma cc8_scratch7.sem)

omit [FloatOps F] in
theorem ownSems0_V :
    (ownSems0 (thr d L) : sProp 𝕄)
      = iprop(semVal (c8 d L) 0 ∗ semVal (c9 d L) 0 ∗ semVal (c10 d L) 0 ∗ semVal (c11 d L) 0
          ∗ bigSep (((((ownCells (thr d L)).erase (c8 d L)).erase (c9 d L)).erase (c10 d L)).erase (c11 d L)) fun g => semVal g 0) := by
  unfold SparseCore.Cfg.ownSems0
  rw [SparseCore.bigSep_erase' ((mem_ownCells (g := c8 d L)).mpr ⟨rfl, by
      show (SemLoc.dma cc8_scratch4.sem : SemLoc sig).isScoped .scVector = true; decide⟩),
    SparseCore.bigSep_erase' (Finset.mem_erase.mpr ⟨fun e => absurd (Prod.mk.inj e).2 (by decide), (mem_ownCells (g := c9 d L)).mpr ⟨rfl, by
      show (SemLoc.dma cc8_scratch5.sem : SemLoc sig).isScoped .scVector = true; decide⟩⟩),
    SparseCore.bigSep_erase' (Finset.mem_erase.mpr ⟨fun e => absurd (Prod.mk.inj e).2 (by decide), Finset.mem_erase.mpr ⟨fun e => absurd (Prod.mk.inj e).2 (by decide),
      (mem_ownCells (g := c10 d L)).mpr ⟨rfl, by show (SemLoc.dma cc8_scratch6.sem : SemLoc sig).isScoped .scVector = true; decide⟩⟩⟩),
    SparseCore.bigSep_erase' (Finset.mem_erase.mpr ⟨fun e => absurd (Prod.mk.inj e).2 (by decide), Finset.mem_erase.mpr ⟨fun e => absurd (Prod.mk.inj e).2 (by decide),
      Finset.mem_erase.mpr ⟨fun e => absurd (Prod.mk.inj e).2 (by decide),
      (mem_ownCells (g := c11 d L)).mpr ⟨rfl, by show (SemLoc.dma cc8_scratch7.sem : SemLoc sig).isScoped .scVector = true; decide⟩⟩⟩⟩)]

abbrev pV (L : grid8.Coords) : Proc τ := Proc.scVector (cV L) (jV L)

omit [FloatOps F] in
theorem ownBufs_V :
    (ownBufs (thr d L) : sProp 𝕄)
      = iprop((∃ f, (thr d L).loc cc8_scratch0 ↦{fullShare} f) ∗ (∃ f, (thr d L).loc cc8_scratch1 ↦{fullShare} f)
          ∗ (∃ f, (thr d L).loc cc8_scratch2 ↦{fullShare} f) ∗ (∃ f, (thr d L).loc cc8_scratch3 ↦{fullShare} f)
          ∗ bigSep (((((ownRefs (τ := τ) (pV L)).erase ((pV L).devRef cc8_scratch0)).erase ((pV L).devRef cc8_scratch1)).erase
              ((pV L).devRef cc8_scratch2)).erase ((pV L).devRef cc8_scratch3))
              fun b => iprop(∃ f, ((d, b) : Loc nD τ sig) ↦{fullShare} f)) := by
  unfold SparseCore.Cfg.ownBufs
  refine (SparseCore.bigSep_erase' (SparseCore.Cfg.mem_ownRefs_of_owner (p := pV L) (b := (pV L).devRef cc8_scratch0) rfl)).trans ?_
  rw [SparseCore.bigSep_erase' (Finset.mem_erase.mpr ⟨fun e => absurd (Proc.devRef_injective _ e) (show (cc8_scratch1 : Ref sig .scVector) ≠ cc8_scratch0 by decide),
      SparseCore.Cfg.mem_ownRefs_of_owner (p := pV L) (b := (pV L).devRef cc8_scratch1) rfl⟩),
    SparseCore.bigSep_erase' (Finset.mem_erase.mpr ⟨fun e => absurd (Proc.devRef_injective _ e) (show (cc8_scratch2 : Ref sig .scVector) ≠ cc8_scratch1 by decide),
      Finset.mem_erase.mpr ⟨fun e => absurd (Proc.devRef_injective _ e) (show (cc8_scratch2 : Ref sig .scVector) ≠ cc8_scratch0 by decide),
      SparseCore.Cfg.mem_ownRefs_of_owner (p := pV L) (b := (pV L).devRef cc8_scratch2) rfl⟩⟩),
    SparseCore.bigSep_erase' (Finset.mem_erase.mpr ⟨fun e => absurd (Proc.devRef_injective _ e) (show (cc8_scratch3 : Ref sig .scVector) ≠ cc8_scratch2 by decide),
      Finset.mem_erase.mpr ⟨fun e => absurd (Proc.devRef_injective _ e) (show (cc8_scratch3 : Ref sig .scVector) ≠ cc8_scratch1 by decide),
      Finset.mem_erase.mpr ⟨fun e => absurd (Proc.devRef_injective _ e) (show (cc8_scratch3 : Ref sig .scVector) ≠ cc8_scratch0 by decide),
      SparseCore.Cfg.mem_ownRefs_of_owner (p := pV L) (b := (pV L).devRef cc8_scratch3) rfl⟩⟩⟩)]

/-- The rest of the subcore's scoped storage, which the task does not touch. -/
def restR : sProp 𝕄 :=
  iprop((bigSep (((((ownRefs (τ := τ) (pV L)).erase ((pV L).devRef cc8_scratch0)).erase ((pV L).devRef cc8_scratch1)).erase
              ((pV L).devRef cc8_scratch2)).erase ((pV L).devRef cc8_scratch3))
              fun b => iprop(∃ f, ((d, b) : Loc nD τ sig) ↦{fullShare} f))
      ∗ bigSep (((((ownCells (thr d L)).erase (c8 d L)).erase (c9 d L)).erase (c10 d L)).erase (c11 d L)) fun g => semVal g 0)

theorem body_pre (hO : ∀ g, O g none = 0) :
    iprop(levAts (K (F := F)).L (K (F := F)).lev ∗ emp ∗ goRes d L fx ∗ ownBufs (thr d L) ∗ ownSems0 (thr d L) ∗ owes (thr d L) O W)
      ⊢ runPre d L O W fx (restR (F := F) d L) := by
  rw [ownSems0_V, ownBufs_V]
  unfold goRes runPre restR
  iintro ⟨#Hlv, -, ⟨HX, HOut⟩, ⟨H4, H5, H6, H7, Hbufs⟩, ⟨Hs8, Hs9, Hs10, Hs11, Hsems⟩, HO⟩
  ihave Hmw := ((K (F := F)).mayWaits_none (thr := thr d L) hO) $$ Hlv
  isplitr; · iexact Hmw
  isplitl [HO]; · iexact HO
  isplitl [HX]; · iexact HX
  isplitl [HOut]; · iexact HOut
  isplitl [H4]; · iexact H4
  isplitl [H5]; · iexact H5
  isplitl [H6]; · iexact H6
  isplitl [H7]; · iexact H7
  isplitl [Hs8]; · iexact Hs8
  isplitl [Hs9]; · iexact Hs9
  isplitl [Hs10]; · iexact Hs10
  isplitl [Hs11]; · iexact Hs11
  isplitl [Hbufs]; · iexact Hbufs
  iexact Hsems

theorem body_post :
    runPost d L O W fx (restR (F := F) d L)
      ⊢ iprop(tdRes d L fx ∗ ownBufs (thr d L) ∗ ownSems0 (thr d L) ∗ ∃ W', ⌜∀ p ∈ W', p ∈ W ∨ p.2 = none⌝ ∗ owes (thr d L) O W') := by
  rw [ownSems0_V, ownBufs_V]
  unfold tdRes runPost restR
  iintro ⟨HX, HOut, H4, H5, H6, H7, Hs8, Hs9, Hs10, Hs11, HW, Hbufs, Hsems⟩
  isplitl [HX HOut]
  · isplitl [HX]; · iexact HX
    iexact HOut
  isplitl [H4 H5 H6 H7 Hbufs]
  · isplitl [H4]; · iexact H4
    isplitl [H5]; · iexact H5
    isplitl [H6]; · iexact H6
    isplitl [H7]; · iexact H7
    iexact Hbufs
  isplitl [Hs8 Hs9 Hs10 Hs11 Hsems]
  · isplitl [Hs8]; · iexact Hs8
    isplitl [Hs9]; · iexact Hs9
    isplitl [Hs10]; · iexact Hs10
    isplitl [Hs11]; · iexact Hs11
    iexact Hsems
  iexact HW

/-- The task in the launch theorem's shape: from what the call hands the tile and the subcore's scoped storage to
    what the tile hands back and the storage again. -/
theorem tile_body (hF : (K (F := F)).Facts) (hO : ∀ g, O g none = 0) :
    iprop(levAts (K (F := F)).L (K (F := F)).lev ∗ emp ∗ goRes d L fx ∗ scopedBufs (thr d L) ∗ scopedSems0 (thr d L) ∗ owes (thr d L) O W)
      ⊢ wp frame (wpE (defs₀ (F := F)) 𝒱₀ (thr d L) none) Set.univ
          (cc8_sc_group L xtW (Memref.isWhole_whole _) oW (Memref.isWhole_whole _) a4 (Memref.isWhole_whole _) a5 (Memref.isWhole_whole _)
            a6 (Memref.isWhole_whole _) a7 (Memref.isWhole_whole _) cc8_scratch4 cc8_scratch5 cc8_scratch6 cc8_scratch7)
          fun _ => iprop(tdRes d L fx ∗ scopedBufs (thr d L) ∗ scopedSems0 (thr d L)
            ∗ ∃ W', ⌜∀ p ∈ W', p ∈ W ∨ p.2 = none⌝ ∗ owes (thr d L) O W') := by
  rw [(K (F := F)).scopedBufs_V hF d (cV L) (jV L), SparseCore.Cfg.scopedSems0_V (Val := Elt F) d (cV L) (jV L)]
  exact (body_pre d L O W fx hO).trans ((tile_run d L O W fx (restR (F := F) d L)).trans (wp_mono frame _ _ fun _ => body_post d L O W fx))

end Tile

end Cert.Proof.TileB8

end
-- ==== Proof.TileVal9.lean ====
/-
  What the staging buffers of one vector subcore hold while it copies a piece of 3200 consecutive elements of row 9 of
  the transposed argument into the flat result, read index by index. No program and no ownership here: only the contents.

  A transfer lands the piece in row 0 of an 8 × 3200 staging array (`InRow`: position (0, t) of that row holds element
  (0, pos + t) of the transposed argument, `pos` the piece's first column). A loop of 200 trips copies that row, 16 lanes
  per trip, into the first 3200 elements of a flat staging array of 25600: trip `j` reads the 1 × 16 window at columns
  [16 j, 16 j + 16) of row 0 and writes it, flattened, at elements [16 j, 16 j + 16). After `j` trips the first 16 j
  elements of the flat array are the first 16 j elements of the row (`Lanes`); a trip extends the prefix by 16
  (`lanes_step`: an element below 16 j is outside the window written and keeps its value, an element of the window reads
  the lane written there, which is the row's element at the same column). A second transfer writes the first 3200
  elements of the flat array to the piece of the result at the same `pos`; so every element of that piece of the result
  holds the element of row 9 of the transposed argument at its own position (`out_written`): the composite of the three
  index maps t ↦ (0, pos + t) ↦ (0, t) ↦ t ↦ pos + t is the identity on positions of the row.
-/
import proofs.«206869_g37898791420194_cont_8to1_b_558_20_alg».proof.Proof.TileK9Defs
import proofs.«206869_g37898791420194_cont_8to1_b_558_20_alg».proof.Proof.Spec
import Idealize.ShloMosaic.Lib.WritesUnit
import Idealize.ShloMosaic.Lib.ValueLayout

noncomputable section

namespace Cert.Proof.TileVal9

open Cert.Proof.TileK9 Cert.KernelIdeal Cert.KernelIdeal.Gen
open Idealize.ShloMosaic Idealize.ShloMosaic.ValueIdx

variable {F : FTy → Type} [FloatOps F]
variable (d : Dev nD) (L : grid9.Coords)
variable (fx : Buf (Elt F) ((Memref.whole main_v0_scv : Memref sig .scVector .hbm S22x1600000 .f32).view.loc (thr d L)))

abbrev rowRect : Rect S8x3200 := Rect.unit (s := S8x3200) ![0, 0] S1x3200.size inb_S8x3200_S1x3200_0_0

/-- row 0 of the staging array is piece n of the argument row -/
def InRow (a : Memref sig .scVector .vmem S8x3200 .f32) (ga : Buf (Elt F) (a.view.loc (thr d L))) (n : ℕ) : Prop :=
  ∀ y : S1x3200.Idx, a.view.read (Elt F) ga (rowRect.emb y) = (inM L n).view.read (Elt F) fx y

theorem inRow_fetch (a : Memref sig .scVector .vmem S8x3200 .f32) (gold : Buf (Elt F) (a.view.loc (thr d L)))
    (w : S1x3200.Idx → Elt F .f32) (n : ℕ) (hw : ∀ y, w y = (inM L n).view.read (Elt F) fx y) :
    InRow d L fx a (a.view.writes (Elt F) gold [⟨rowRect, w⟩]) n :=
  fun y => (View.read_writes_cons_emb a.view gold rowRect w [] y).trans (hw y)

def Lanes (a : Memref sig .scVector .vmem S8x3200 .f32) (b : Memref sig .scVector .vmem S25600 .f32)
    (ga : Buf (Elt F) (a.view.loc (thr d L))) (gb : Buf (Elt F) (b.view.loc (thr d L))) (j : ℕ) : Prop :=
  ∀ (r : ℕ) (hr : r < 3200), r < 16 * j →
    b.view.read (Elt F) gb (ix1 (⟨r, by omega⟩ : Fin 25600)) = a.view.read (Elt F) ga (ix2 (0 : Fin 8) (⟨r, hr⟩ : Fin 3200))

theorem lanes_zero (a : Memref sig .scVector .vmem S8x3200 .f32) (b : Memref sig .scVector .vmem S25600 .f32)
    (ga : Buf (Elt F) (a.view.loc (thr d L))) (gb : Buf (Elt F) (b.view.loc (thr d L))) : Lanes d L a b ga gb 0 := by
  intro r hr h; omega

/-- The 1 × 16 window at column `c` of the staging array, read at lane `t`, is element `(0, c + t)`. -/
theorem idx_window {off : Fin 2 → ℕ} {c : ℕ} (h : off = ![0, c]) (p : ∀ a', off a' + S1x16.size a' ≤ S8x3200.size a')
    (t : Fin 16) (hr : c + t.val < 3200) :
    (Rect.unit (s := S8x3200) off S1x16.size p).toLoadRect.idx (ix2 (0 : Fin 1) t) = ix2 (0 : Fin 8) (⟨c + t.val, hr⟩ : Fin 3200) := by
  subst h
  funext a'; apply Fin.ext
  rw [LoadRect.idx_apply]
  match a' with
  | ⟨0, _⟩ => show 0 + 1 * 0 = 0; omega
  | ⟨1, _⟩ => show c + 1 * t.val = c + t.val; omega

/-- One trip of a lane-copy loop, the offsets given by their closed forms. -/
theorem lanes_step_core (a : Memref sig .scVector .vmem S8x3200 .f32) (b : Memref sig .scVector .vmem S25600 .f32)
    (ga : Buf (Elt F) (a.view.loc (thr d L))) (gb : Buf (Elt F) (b.view.loc (thr d L)))
    (t : ℕ) {off3 : Fin 2 → ℕ} {off4 : Fin 1 → ℕ} (h3 : off3 = ![0, 16 * t]) (h4 : off4 = ![16 * t])
    (p3 : ∀ a', off3 a' + S1x16.size a' ≤ S8x3200.size a') (p4 : ∀ a', off4 a' + S16.size a' ≤ S25600.size a')
    (h : Lanes d L a b ga gb t) :
    Lanes d L a b ga (b.view.writes (Elt F) gb [⟨Rect.unit (s := S25600) off4 S16.size p4,
      shapeCast S16 (a.view.readAt (Elt F) (Rect.unit (s := S8x3200) off3 S1x16.size p3).toLoadRect ga) shapeCasts_S1x16_S16⟩]) (t + 1) := by
  intro r hr hlt
  by_cases hlo : r < 16 * t
  · refine (View.read_writes_cons_unit_of_not_mem b.view gb p4 _ [] _ h4 (0 : Fin 1) (Or.inl ?_)).trans (h r hr hlo)
    show r < 16 * t
    exact hlo
  · have hx : r - 16 * t < 16 := by omega
    refine (View.read_writes_cons_unit_of_mem b.view gb p4 _ [] _ (ix1 (⟨r - 16 * t, hx⟩ : Fin 16)) h4 ?_).trans ?_
    · intro a'
      match a' with
      | ⟨0, _⟩ => show r = 16 * t + (r - 16 * t); omega
    · rw [shapeCast_1a_a_apply, View.readAt_apply, idx_window h3 p3 ⟨r - 16 * t, hx⟩ (by show 16 * t + (r - 16 * t) < 3200; omega)]
      congr 2
      apply Fin.ext
      show 16 * t + (r - 16 * t) = r
      omega

theorem lanes_step (a : Memref sig .scVector .vmem S8x3200 .f32) (b : Memref sig .scVector .vmem S25600 .f32)
    (ga : Buf (Elt F) (a.view.loc (thr d L))) (gb : Buf (Elt F) (b.view.loc (thr d L)))
    (j : Fin k9_t2_loop.trips) (p3 : ∀ a', (k9_off3 j) a' + S1x16.size a' ≤ S8x3200.size a')
    (p4 : ∀ a', (k9_off4 j) a' + S16.size a' ≤ S25600.size a') (h : Lanes d L a b ga gb j.val) :
    Lanes d L a b ga (b.view.writes (Elt F) gb [⟨Rect.unit (s := S25600) (k9_off4 j) S16.size p4,
      k9_pay1 (a.view.readAt (Elt F) (Rect.unit (s := S8x3200) (k9_off3 j) S1x16.size p3).toLoadRect ga)⟩]) (j.val + 1) :=
  lanes_step_core d L a b ga gb j.val (k9_off3_eq j) (k9_off4_eq j) p3 p4 h

theorem lanes_step' (a : Memref sig .scVector .vmem S8x3200 .f32) (b : Memref sig .scVector .vmem S25600 .f32)
    (ga : Buf (Elt F) (a.view.loc (thr d L))) (gb : Buf (Elt F) (b.view.loc (thr d L)))
    (j : Fin k9_t3_loop.trips) (p3 : ∀ a', (k9_off8 j) a' + S1x16.size a' ≤ S8x3200.size a')
    (p4 : ∀ a', (k9_off9 j) a' + S16.size a' ≤ S25600.size a') (h : Lanes d L a b ga gb j.val) :
    Lanes d L a b ga (b.view.writes (Elt F) gb [⟨Rect.unit (s := S25600) (k9_off9 j) S16.size p4,
      k9_pay2 (a.view.readAt (Elt F) (Rect.unit (s := S8x3200) (k9_off8 j) S1x16.size p3).toLoadRect ga)⟩]) (j.val + 1) :=
  lanes_step_core d L a b ga gb j.val (k9_off8_eq j) (k9_off9_eq j) p3 p4 h

/-- Position `y` of the write-out window of the flat staging array is its element `y 0`. -/
theorem stg_emb (y : S3200.Idx) (hy : (y 0).val < 25600) :
    (Rect.unit (s := S25600) ![0] S3200.size inb_S25600_S3200_0).emb y = ix1 (⟨(y 0).val, hy⟩ : Fin 25600) := by
  funext a'; apply Fin.ext
  match a' with
  | ⟨0, _⟩ => show 0 + 1 * (y 0).val = (y 0).val; omega

/-- Position `(0, t)` of row 0 of the staging array is its element `(0, t)`. -/
theorem row_emb (t : Fin 3200) : rowRect.emb (ix2 (0 : Fin 1) t) = ix2 (0 : Fin 8) t := by
  funext a'; apply Fin.ext
  match a' with
  | ⟨0, _⟩ => show 0 + 1 * 0 = 0; omega
  | ⟨1, _⟩ => show 0 + 1 * t.val = t.val; omega

/-- Position `(0, t)` of piece `n` of the argument row is element `(0, pos + t)` of the transposed argument;
    position `y` of piece `n` of the result is element `pos + y 0` of the result. -/
theorem in_emb (n : ℕ) (t : Fin 3200) (h : pos L n + t.val < 1600000) :
    (inM L n).view.emb (ix2 (0 : Fin 1) t) = ix2 (9 : Fin 22) (⟨pos L n + t.val, h⟩ : Fin 1600000) := by
  funext a'; apply Fin.ext
  match a' with
  | ⟨0, _⟩ => show 9 + 1 * 0 = 9; omega
  | ⟨1, _⟩ => show pos L n + 1 * t.val = pos L n + t.val; omega

theorem out_emb (n : ℕ) (y : S3200.Idx) (h : pos L n + (y 0).val < 1600000) :
    (outM L n).view.emb y = ix1 (⟨pos L n + (y 0).val, h⟩ : Fin 1600000) := by
  funext a'; apply Fin.ext
  match a' with
  | ⟨0, _⟩ => show pos L n + 1 * (y 0).val = pos L n + (y 0).val; omega

/-- Both lane-copy loops run 200 trips: 200 · 16 = 3200, the whole row. -/
theorem trips2 : k9_t2_loop.trips = 200 := by decide
theorem trips3 : k9_t3_loop.trips = 200 := by decide

/-- After all its trips a lane-copy loop has copied the whole row. -/
theorem lanes_all (a : Memref sig .scVector .vmem S8x3200 .f32) (b : Memref sig .scVector .vmem S25600 .f32)
    (ga : Buf (Elt F) (a.view.loc (thr d L))) (gb : Buf (Elt F) (b.view.loc (thr d L)))
    (h : Lanes d L a b ga gb k9_t2_loop.trips) : Lanes d L a b ga gb 200 := trips2 ▸ h
theorem lanes_all' (a : Memref sig .scVector .vmem S8x3200 .f32) (b : Memref sig .scVector .vmem S25600 .f32)
    (ga : Buf (Elt F) (a.view.loc (thr d L))) (gb : Buf (Elt F) (b.view.loc (thr d L)))
    (h : Lanes d L a b ga gb k9_t3_loop.trips) : Lanes d L a b ga gb 200 := trips3 ▸ h

/-- The write-out of a piece: the first 3200 elements of the flat staging array, which the 200 lane copies filled from
    row 0 of the staging array, which the fetch filled from piece `n` of row 9 of the transposed argument, land at
    piece `n` of the result, at the same positions of the row. -/
theorem out_written (a : Memref sig .scVector .vmem S8x3200 .f32) (b : Memref sig .scVector .vmem S25600 .f32) (n : ℕ)
    (ga : Buf (Elt F) (a.view.loc (thr d L))) (gb : Buf (Elt F) (b.view.loc (thr d L)))
    (f0 : Buf (Elt F) ((outM L n).view.loc (thr d L))) (w : S3200.Idx → Elt F .f32)
    (hw : ∀ y, w y = (stg b).view.read (Elt F) gb y) (hl : Lanes d L a b ga gb 200) (hr : InRow d L fx a ga n) (hv : valid L n) :
    ∀ i ∈ (outM L n).view.set, ((outM L n).view.writes (Elt F) f0 [⟨Rect.whole _, w⟩]) i = Cert.Spec.row 9 fx i := by
  intro i hi
  obtain ⟨y, -, rfl⟩ := Finset.mem_map.mp hi
  have hy : (y 0).val < 3200 := (y 0).isLt
  have hp : pos L n + (y 0).val < 1600000 := by unfold pos; omega
  have e1 : (outM L n).view.writes (Elt F) f0 [⟨Rect.whole _, w⟩] ((outM L n).view.emb y) = w y := by
    have h := View.read_writes_cons_emb (outM L n).view f0 (Rect.whole _) w [] y
    rw [Rect.emb_whole_apply] at h
    exact (cast_eq _ _).symm.trans ((View.read_apply _ _).symm.trans h)
  have e2 : (stg b).view.read (Elt F) gb y = b.view.read (Elt F) gb (ix1 (⟨(y 0).val, by omega⟩ : Fin 25600)) :=
    congrArg (b.view.read (Elt F) gb) (stg_emb y (by omega))
  have e3 : a.view.read (Elt F) ga (ix2 (0 : Fin 8) (⟨(y 0).val, hy⟩ : Fin 3200))
      = (inM L n).view.read (Elt F) fx (ix2 (0 : Fin 1) (⟨(y 0).val, hy⟩ : Fin 3200)) :=
    (congrArg (a.view.read (Elt F) ga) (row_emb ⟨(y 0).val, hy⟩).symm).trans (hr _)
  have e4 : (inM L n).view.read (Elt F) fx (ix2 (0 : Fin 1) (⟨(y 0).val, hy⟩ : Fin 3200))
      = fx (ix2 (9 : Fin 22) (⟨pos L n + (y 0).val, hp⟩ : Fin 1600000)) :=
    ((View.read_apply _ _).trans (cast_eq _ _)).trans (congrArg fx (in_emb L n ⟨(y 0).val, hy⟩ hp))
  have e5 : Cert.Spec.row 9 fx ((outM L n).view.emb y) = fx (ix2 (9 : Fin 22) (⟨pos L n + (y 0).val, hp⟩ : Fin 1600000)) :=
    (congrArg (Cert.Spec.row 9 fx) (out_emb L n y hp)).trans (Cert.Spec.row_apply 9 fx _)
  exact e1.trans ((hw y).trans (e2.trans ((hl _ hy (by omega)).trans (e3.trans (e4.trans e5.symm)))))

end Cert.Proof.TileVal9

end
-- ==== Proof.TileK9.lean ====
/-
  One vector subcore's task of copy kernel 9 (counting from 0), run symbolically: the two fetch slots and two write-out slots
  between trips of the main loop (what each transfer in flight will hand back, and what the staging buffers hold), the
  invariant of the main loop and of the two lane-copy loops, and the task's run — from the tile's pieces of row 9 of
  the transposed argument and of the result to the same pieces with the result holding the row's elements.
-/
import proofs.«206869_g37898791420194_cont_8to1_b_558_20_alg».proof.Proof.TileK9Defs
import proofs.«206869_g37898791420194_cont_8to1_b_558_20_alg».proof.Proof.TileVal9
noncomputable section

namespace Cert.Proof.TileK9

open Cert.KernelIdeal Cert.KernelIdeal.Gen Cert.Proof.TileVal9
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 22) (Elt F) ℕ UU ℕ
local notation "xtW" => (Memref.whole Cert.KernelIdeal.main_v0_scv : Memref Cert.KernelIdeal.sig Kind.scVector Space.hbm Cert.KernelIdeal.S22x1600000 EltTy.f32)
local notation "oW" => (Memref.whole Cert.KernelIdeal.main_v10_scv : Memref Cert.KernelIdeal.sig Kind.scVector Space.hbm Cert.KernelIdeal.S1600000 EltTy.f32)
local notation "a4" => (Memref.whole Cert.KernelIdeal.cc9_scratch0 : Memref Cert.KernelIdeal.sig Kind.scVector Space.vmem Cert.KernelIdeal.S8x3200 EltTy.f32)
local notation "a5" => (Memref.whole Cert.KernelIdeal.cc9_scratch1 : Memref Cert.KernelIdeal.sig Kind.scVector Space.vmem Cert.KernelIdeal.S8x3200 EltTy.f32)
local notation "a6" => (Memref.whole Cert.KernelIdeal.cc9_scratch2 : Memref Cert.KernelIdeal.sig Kind.scVector Space.vmem Cert.KernelIdeal.S25600 EltTy.f32)
local notation "a7" => (Memref.whole Cert.KernelIdeal.cc9_scratch3 : Memref Cert.KernelIdeal.sig Kind.scVector Space.vmem Cert.KernelIdeal.S25600 EltTy.f32)

variable [FloatOps F]

section Tile

variable (d : Dev nD) (L : grid9.Coords)
variable (O : CellTallies nD τ sig (HIx 22)) (W : Waits sig (HIx 22))
variable (fx : Buf (Elt F) ((xtW).view.loc (thr d L)))

/-- Piece `n` of the result at its final contents. -/
abbrev oqPiece (n : ℕ) : sProp 𝕄 := (outM L n).view.loc (thr d L) ↦[(outM L n).view.set]{fullShare} (Cert.Spec.row 9 fx)
theorem oQ_pos {n : ℕ} (v : valid L n) : oQ d L fx n = oqPiece d L fx n := if_pos v
theorem oQ_neg {n : ℕ} (v : ¬ valid L n) : oQ d L fx n = iprop(emp) := if_neg v

/-- A fetch slot, remembering that the staging row it will hand back holds the piece. -/
def inSlotV (a : Memref sig .scVector .vmem S8x3200 .f32) (sm : DmaSem sig) (n : ℕ) : sProp 𝕄 :=
  if valid L n then
    iprop(∃ g, ⌜InRow d L fx a g n⌝ ∗ Transfers.Flight countersEmb (thr d L) (SemLoc.dma sm) (default : HIx 22) NN
      iprop((a.view.loc (thr d L) ↦{fullShare} g) ∗ xtPiece d L fx n))
  else iprop((∃ g, a.view.loc (thr d L) ↦{fullShare} g) ∗ semVal (thr d L, SemLoc.dma sm) 0)

/-- A write-out slot: the piece in flight will come back holding the row's elements. -/
def outSlotV (a : Memref sig .scVector .vmem S25600 .f32) (sm : DmaSem sig) (m : ℕ) : sProp 𝕄 :=
  if 2 ≤ m ∧ valid L (m - 2) then
    iprop(∃ g, Transfers.Flight countersEmb (thr d L) (SemLoc.dma sm) (default : HIx 22) NN
        iprop(oqPiece d L fx (m - 2) ∗ ((stg a).view.loc (thr d L) ↦[(stg a).view.set]{fullShare} g))
      ∗ (a.view.loc (thr d L) ↦[Finset.univ \ (stg a).view.set]{fullShare} g))
  else iprop((∃ g, a.view.loc (thr d L) ↦{fullShare} g) ∗ semVal (thr d L, SemLoc.dma sm) 0)

theorem inSlotV_pos {a : Memref sig .scVector .vmem S8x3200 .f32} {sm : DmaSem sig} {n : ℕ} (v : valid L n) :
    inSlotV d L fx a sm n = iprop(∃ g, ⌜InRow d L fx a g n⌝ ∗ Transfers.Flight countersEmb (thr d L) (SemLoc.dma sm) (default : HIx 22) NN
      iprop((a.view.loc (thr d L) ↦{fullShare} g) ∗ xtPiece d L fx n)) := by unfold inSlotV; rw [if_pos v]
theorem inSlotV_neg {a : Memref sig .scVector .vmem S8x3200 .f32} {sm : DmaSem sig} {n : ℕ} (v : ¬ valid L n) :
    inSlotV d L fx a sm n = iprop((∃ g, a.view.loc (thr d L) ↦{fullShare} g) ∗ semVal (thr d L, SemLoc.dma sm) 0) := by
  unfold inSlotV; rw [if_neg v]
theorem outSlotV_pos {a : Memref sig .scVector .vmem S25600 .f32} {sm : DmaSem sig} {m : ℕ} (h : 2 ≤ m ∧ valid L (m - 2)) :
    outSlotV d L fx a sm m = iprop(∃ g, Transfers.Flight countersEmb (thr d L) (SemLoc.dma sm) (default : HIx 22) NN
        iprop(oqPiece d L fx (m - 2) ∗ ((stg a).view.loc (thr d L) ↦[(stg a).view.set]{fullShare} g))
      ∗ (a.view.loc (thr d L) ↦[Finset.univ \ (stg a).view.set]{fullShare} g)) := by unfold outSlotV; rw [if_pos h]
theorem outSlotV_neg {a : Memref sig .scVector .vmem S25600 .f32} {sm : DmaSem sig} {m : ℕ} (h : ¬ (2 ≤ m ∧ valid L (m - 2))) :
    outSlotV d L fx a sm m = iprop((∃ g, a.view.loc (thr d L) ↦{fullShare} g) ∗ semVal (thr d L, SemLoc.dma sm) 0) := by
  unfold outSlotV; rw [if_neg h]

/-- A fetch just issued: the staging row will hold what the transfer reads, which is the piece. -/
theorem fl_inV {off : Fin 2 → ℕ} {n : ℕ} (h : off = ![9, pos L n]) (p : ∀ a, off a + S1x3200.size a ≤ S22x1600000.size a) (v : valid L n)
    (a : Memref sig .scVector .vmem S8x3200 .f32) (sm : DmaSem sig) :
    (iprop(∃ (gold : Buf (Elt F) (a.view.loc (thr d L))) (w : S1x3200.Idx → Elt F .f32),
        ⌜∀ y, w y = ((xtW).slice (Rect.unit (s := S22x1600000) off S1x3200.size p) (fun _ => rfl)).view.read (Elt F) fx y⌝
        ∗ Transfers.Flight countersEmb (thr d L) (SemLoc.dma sm) (default : HIx 22) NN
          iprop((a.view.loc (thr d L) ↦{fullShare} a.view.writes (Elt F) gold [⟨rowRect, w⟩])
            ∗ (((xtW).slice (Rect.unit (s := S22x1600000) off S1x3200.size p) (fun _ => rfl)).view.loc (thr d L)
                ↦[((xtW).slice (Rect.unit (s := S22x1600000) off S1x3200.size p) (fun _ => rfl)).view.set]{fullShare} fx))) : sProp 𝕄)
      ⊢ inSlotV d L fx a sm n := by
  subst h
  rw [inSlotV_pos d L fx v]
  iintro ⟨%gold, %w, %hw, H⟩
  iexists _
  isplitr
  · ipureintro; exact inRow_fetch d L fx a gold w n hw
  · iexact H

set_option maxHeartbeats 4000000 in
/-- A write-out just issued from a flat staging buffer whose first 3200 elements are the staging row, itself piece
    `n` of the argument row: the piece of the result will hold the row's elements. -/
theorem fl_outV {off : Fin 1 → ℕ} {n : ℕ} (h : off = ![pos L n]) (p : ∀ a, off a + S3200.size a ≤ S1600000.size a) (v : valid L n)
    (ar : Memref sig .scVector .vmem S8x3200 .f32) (a : Memref sig .scVector .vmem S25600 .f32) (sm : DmaSem sig)
    (f0 : Buf (Elt F) ((oW).view.loc (thr d L))) (ga : Buf (Elt F) (ar.view.loc (thr d L))) (gb : Buf (Elt F) (a.view.loc (thr d L)))
    (hl : Lanes d L ar a ga gb 200) (hr : InRow d L fx ar ga n) :
    (iprop(∃ (w : S3200.Idx → Elt F .f32),
        ⌜∀ y, w y = (stg a).view.read (Elt F) gb y⌝
        ∗ Transfers.Flight countersEmb (thr d L) (SemLoc.dma sm) (default : HIx 22) NN
          iprop((((oW).slice (Rect.unit (s := S1600000) off S3200.size p) (fun _ => rfl)).view.loc (thr d L)
                ↦[((oW).slice (Rect.unit (s := S1600000) off S3200.size p) (fun _ => rfl)).view.set]{fullShare}
                  (((oW).slice (Rect.unit (s := S1600000) off S3200.size p) (fun _ => rfl)).view.writes (Elt F) f0 [⟨Rect.whole _, w⟩]))
            ∗ ((stg a).view.loc (thr d L) ↦[(stg a).view.set]{fullShare} gb))
        ∗ (a.view.loc (thr d L) ↦[Finset.univ \ (stg a).view.set]{fullShare} gb)) : sProp 𝕄)
      ⊢ outSlotV d L fx a sm (n + 2) := by
  subst h
  rw [outSlotV_pos d L fx (m := n + 2) ⟨by omega, by simpa using v⟩]
  iintro ⟨%w, %hw, H, R⟩
  have hD : (iprop(((outM L n).view.loc (thr d L) ↦[(outM L n).view.set]{fullShare} ((outM L n).view.writes (Elt F) f0 [⟨Rect.whole _, w⟩]))
          ∗ ((stg a).view.loc (thr d L) ↦[(stg a).view.set]{fullShare} gb)) : sProp 𝕄)
      ⊢ iprop(oqPiece d L fx (n + 2 - 2) ∗ ((stg a).view.loc (thr d L) ↦[(stg a).view.set]{fullShare} gb)) := by
    rw [Nat.add_sub_cancel]
    have e : (((outM L n).view.loc (thr d L) ↦[(outM L n).view.set]{fullShare} ((outM L n).view.writes (Elt F) f0 [⟨Rect.whole _, w⟩])) : sProp 𝕄)
        = oqPiece d L fx n := pointsTo_congr (out_written d L fx ar a n ga gb f0 w hw hl hr v)
    iintro ⟨H1, H2⟩
    isplitl [H1]
    · iapply (Entails.of_eq e); iexact H1
    · iexact H2
  iexists gb
  isplitl [H]
  · iapply (Transfers.Flight_mono countersEmb (thr d L) hD); iexact H
  · iexact R

/-- The result pieces outside the slots before trip `t`: those already written hold the row, the others some contents. -/
def oMix (t n : ℕ) : sProp 𝕄 := if n + 2 < 2 * t then oQ d L fx n else oP (F := F) d L n
theorem oMix_lt {t n : ℕ} (h : n + 2 < 2 * t) : oMix d L fx t n = oQ d L fx n := if_pos h
theorem oMix_ge {t n : ℕ} (h : ¬ n + 2 < 2 * t) : oMix d L fx t n = oP (F := F) d L n := if_neg h
theorem oMix_core (k : ℕ) : bigSep (oCore k) (oMix d L fx k) = bigSep (oCore k) (oMix d L fx (k + 1)) :=
  bigSep_congr fun n hn => by
    have hn' : n + 2 ≠ 2 * k ∧ n + 2 ≠ 2 * k + 1 ∧ n ≠ 2 * k ∧ n ≠ 2 * k + 1 := by
      simp only [oCore, Finset.mem_filter, Finset.mem_range] at hn; exact hn.2
    by_cases h : n + 2 < 2 * k
    · rw [oMix_lt d L fx h, oMix_lt d L fx (by omega)]
    · rw [oMix_ge d L fx h, oMix_ge d L fx (by omega)]
theorem oMix_zero : bigSep (oSet 0) (oMix d L fx 0) = bigSep (Finset.range 18) (oP (F := F) d L) := by
  rw [oSet_zero]; exact bigSep_congr fun n _ => oMix_ge d L fx (by omega)
theorem oMix_end : bigSep (oSet 8) (oMix d L fx 8) = bigSep (oSet 8) (oQ d L fx) :=
  bigSep_congr fun n hn => by
    have hn' : n < 18 ∧ n + 2 ≠ 16 ∧ n + 2 ≠ 17 := by simpa only [oSet, Finset.mem_filter, Finset.mem_range] using hn
    by_cases h : n + 2 < 2 * 8
    · exact oMix_lt d L fx h
    · rw [oMix_ge d L fx h, oP_neg (F := F) d L (by unfold valid; omega), oQ_neg d L fx (by unfold valid; omega)]

/-- The lane-copy loops: before trip `j` the first 16·j elements of the flat staging buffer are the staging row's. -/
def laneV0 (g4 : Buf (Elt F) ((a4).view.loc (thr d L))) (j : ℕ) (_ : PUnit) : sProp 𝕄 :=
  iprop(((a4).view.loc (thr d L) ↦{fullShare} g4) ∗ (∃ g, ((a6).view.loc (thr d L) ↦{fullShare} g) ∗ ⌜Lanes d L a4 a6 g4 g j⌝))
def laneV1 (g5 : Buf (Elt F) ((a5).view.loc (thr d L))) (j : ℕ) (_ : PUnit) : sProp 𝕄 :=
  iprop(((a5).view.loc (thr d L) ↦{fullShare} g5) ∗ (∃ g, ((a7).view.loc (thr d L) ↦{fullShare} g) ∗ ⌜Lanes d L a5 a7 g5 g j⌝))

def invV (t : ℕ) (_ : PUnit) : sProp 𝕄 :=
  iprop(Transfers.MayWaits (thr d L) (none : HIx 22) O
    ∗ (∃ W', ⌜∀ p ∈ W', p ∈ W ∨ p.2 = none⌝ ∗ owes (thr d L) O W')
    ∗ bigSep (xSet t) (xP d L fx) ∗ bigSep (oSet t) (oMix d L fx t)
    ∗ inSlotV d L fx a4 cc9_scratch4.sem (2 * t) ∗ outSlotV d L fx a6 cc9_scratch6.sem (2 * t)
    ∗ inSlotV d L fx a5 cc9_scratch5.sem (2 * t + 1) ∗ outSlotV d L fx a7 cc9_scratch7.sem (2 * t + 1))

/-- After the last trip nothing of the argument row is in a slot: the tile holds all its pieces. -/
theorem xRange_end : bigSep (xSet 8) (xP d L fx) ⊢ bigSep (Finset.range 18) (xP d L fx) := by
  rw [two_out (s := Finset.range 18) (a := 16) (b := 17) (by decide) (by decide) (by decide),
    show ((Finset.range 18).erase 16).erase 17 = xSet 8 by decide]
  iintro H
  isplitr; · iapply (Entails.of_eq (xP_neg d L fx (n := 16) (by unfold valid; omega)).symm); iempintro
  isplitr; · iapply (Entails.of_eq (xP_neg d L fx (n := 17) (by unfold valid; omega)).symm); iempintro
  iexact H
omit [FloatOps F] in
theorem oRange_end (Φ : ℕ → sProp 𝕄) : bigSep (Finset.range 18) Φ = iprop(Φ 14 ∗ Φ 15 ∗ bigSep (oSet 8) Φ) := by
  rw [two_out (s := Finset.range 18) (a := 14) (b := 15) (by decide) (by decide) (by decide),
    show ((Finset.range 18).erase 14).erase 15 = oSet 8 by decide]

/-- What the run starts from and ends with, beside an untouched rest `R`. -/
def runPre (R : sProp 𝕄) : sProp 𝕄 :=
    iprop(Transfers.MayWaits (thr d L) (none : HIx 22) O ∗ owes (thr d L) O W
        ∗ bigSep (Finset.range 18) (xP d L fx) ∗ bigSep (Finset.range 18) (oP (F := F) d L)
        ∗ (∃ g, (a4).view.loc (thr d L) ↦{fullShare} g) ∗ (∃ g, (a5).view.loc (thr d L) ↦{fullShare} g)
        ∗ (∃ g, (a6).view.loc (thr d L) ↦{fullShare} g) ∗ (∃ g, (a7).view.loc (thr d L) ↦{fullShare} g)
        ∗ semVal (thr d L, SemLoc.dma cc9_scratch4.sem) 0 ∗ semVal (thr d L, SemLoc.dma cc9_scratch5.sem) 0
        ∗ semVal (thr d L, SemLoc.dma cc9_scratch6.sem) 0 ∗ semVal (thr d L, SemLoc.dma cc9_scratch7.sem) 0 ∗ R)
def runPost (R : sProp 𝕄) : sProp 𝕄 :=
    iprop(bigSep (Finset.range 18) (xP d L fx) ∗ bigSep (Finset.range 18) (oQ d L fx)
            ∗ (∃ g, (a4).view.loc (thr d L) ↦{fullShare} g) ∗ (∃ g, (a5).view.loc (thr d L) ↦{fullShare} g)
            ∗ (∃ g, (a6).view.loc (thr d L) ↦{fullShare} g) ∗ (∃ g, (a7).view.loc (thr d L) ↦{fullShare} g)
            ∗ semVal (thr d L, SemLoc.dma cc9_scratch4.sem) 0 ∗ semVal (thr d L, SemLoc.dma cc9_scratch5.sem) 0
            ∗ semVal (thr d L, SemLoc.dma cc9_scratch6.sem) 0 ∗ semVal (thr d L, SemLoc.dma cc9_scratch7.sem) 0
            ∗ (∃ W', ⌜∀ p ∈ W', p ∈ W ∨ p.2 = none⌝ ∗ owes (thr d L) O W') ∗ R)

set_option maxHeartbeats 16000000 in
/-- The task's run: from its pieces of the argument row and of the result, the four staging buffers and the four
    semaphores at zero, to the same with every piece of the result holding the row's elements. -/
theorem tile_run (R : sProp 𝕄) :
    runPre d L O W fx R
      ⊢ wp frame (wpE (defs₀ (F := F)) 𝒱₀ (thr d L) none) Set.univ
          (cc9_sc_group L xtW (Memref.isWhole_whole _) oW (Memref.isWhole_whole _) a4 (Memref.isWhole_whole _) a5 (Memref.isWhole_whole _)
            a6 (Memref.isWhole_whole _) a7 (Memref.isWhole_whole _) cc9_scratch4 cc9_scratch5 cc9_scratch6 cc9_scratch7)
          fun _ => runPost d L O W fx R := by
  unfold runPre runPost
  have v0 : valid L 0 := Or.inl (by omega)
  have v1 : valid L 1 := Or.inl (by omega)
  have k9_h7 : k9_cond7 L = 1#1 := cond7_iff L
  iintro ⟨#Hmw, HO, HX, HOut, ⟨%g4, H4⟩, ⟨%g5, H5⟩, ⟨%g6, H6⟩, ⟨%g7, H7⟩, Hs8, Hs9, Hs10, Hs11, HR⟩
  ihave HX := (Entails.of_eq (xRange_split d L fx v0 v1)) $$ HX
  icases HX with ⟨X0, X1, HX⟩
  ihave X0 := (Entails.of_eq (in_congr d L (off_in0 L v0).symm (in_inb L _) (k9_off1_inb L 0) fx)) $$ X0
  ihave X1 := (Entails.of_eq (in_congr d L (off_in1 L v1).symm (in_inb L _) (k9_off1_inb L 1) fx)) $$ X1
  sl_unfold [cc9_sc_group]
  sl_exec
  ihave S8 := (fl_inV d L fx (off_in0 L v0) (k9_off1_inb L 0) v0 a4 cc9_scratch4.sem) $$ [Hs8]
  · iexists _, _
    isplitr
    rotate_left
    · iexact Hs8
    ipureintro; intro y; rfl
  ihave S9 := (fl_inV d L fx (off_in1 L v1) (k9_off1_inb L 1) v1 a5 cc9_scratch5.sem) $$ [Hs9]
  · iexists _, _
    isplitr
    rotate_left
    · iexact Hs9
    ipureintro; intro y; rfl
  sl_for (invV d L O W fx) $$ [HO HX HOut S8 S9 H6 H7 Hs10 Hs11]
  case region =>
    intro (k : Fin k9_t1_loop.trips) acc
    have hk : k.val < 8 := Nat.lt_of_lt_of_eq k.isLt trips1
    unfold invV
    iintro ⟨#Hmw, ⟨%W', %hW', HO⟩, HX, HOut, S8, S10, S9, S11⟩
    by_cases hk1 : 1 ≤ k.val
    · by_cases v3 : valid L (2 * k.val + 3)
      · -- the generic trip: both drains, both pieces worked, both next fetches issued
        have hk6 : k.val ≤ 6 := by unfold valid at v3; omega
        have k9_h1 : k9_cond1 k = 1#1 := (cond1_iff k).mpr (by omega)
        have k9_h2 : k9_cond2 L k = 1#1 := cond2_iff L k
        have k9_h3 : k9_cond3 L k = 1#1 := (cond3_iff L k).mpr (by omega)
        have k9_h4 : k9_cond4 k = 1#1 := (cond4_iff k).mpr (by omega)
        have k9_h5 : k9_cond5 L k = 1#1 := (cond5_iff L k).mpr (by first | (unfold valid big at *; omega) | (unfold big at *; omega) | omega)
        have k9_h6 : k9_cond6 L k = 1#1 := (cond6_iff L k).mpr (by first | (unfold valid big at *; omega) | (unfold big at *; omega) | omega)
        have v0 : valid L (2 * k.val) := by unfold valid big at *; omega
        have v1 : valid L (2 * k.val + 1) := by unfold valid big at *; omega
        have v2 : valid L (2 * k.val + 2) := by unfold valid big at *; omega
        have v3' : valid L (2 * k.val + 3) := by unfold valid big at *; omega
        have hm0 : 2 ≤ 2 * k.val ∧ valid L (2 * k.val - 2) := ⟨by omega, by unfold valid big at *; omega⟩
        have hm1 : 2 ≤ 2 * k.val + 1 ∧ valid L (2 * k.val + 1 - 2) := ⟨by omega, by unfold valid big at *; omega⟩
        ihave S8 := (Entails.of_eq (inSlotV_pos d L fx v0)) $$ S8
        icases S8 with ⟨%g4, %hin4, F8⟩
        ihave S9 := (Entails.of_eq (inSlotV_pos d L fx v1)) $$ S9
        icases S9 with ⟨%g5, %hin5, F9⟩
        ihave S10 := (Entails.of_eq (outSlotV_pos d L fx hm0)) $$ S10
        icases S10 with ⟨%g6, F10, R6⟩
        ihave S11 := (Entails.of_eq (outSlotV_pos d L fx hm1)) $$ S11
        icases S11 with ⟨%g7, F11, R7⟩
        ihave HX := (Entails.of_eq (xSet_out (xP d L fx) k.val hk)) $$ HX
        icases HX with ⟨X2, X3, HX⟩
        ihave X2 := (Entails.of_eq (xP_pos d L fx v2)) $$ X2
        ihave X2 := (Entails.of_eq (in_congr d L (off_6 L k v2).symm (in_inb L _) (k9_off6_inb L k k9_h3) fx)) $$ X2
        ihave X3 := (Entails.of_eq (xP_pos d L fx v3')) $$ X3
        ihave X3 := (Entails.of_eq (in_congr d L (off_11 L k v3').symm (in_inb L _) (k9_off11_inb L k k9_h6) fx)) $$ X3
        ihave HOut := (Entails.of_eq (oSet_out (oMix d L fx k.val) k.val hk)) $$ HOut
        icases HOut with ⟨Y0, Y1, HOut⟩
        ihave Y0 := (Entails.of_eq ((oMix_ge d L fx (t := k.val) (n := 2 * k.val) (by omega)).trans (oP_pos (F := F) d L v0))) $$ Y0
        icases Y0 with ⟨%f0, Y0⟩
        ihave Y0 := (Entails.of_eq (out_congr d L (off_5 L k v0).symm (out_inb L _) (k9_off5_inb L k k9_h2) f0)) $$ Y0
        ihave Y1 := (Entails.of_eq ((oMix_ge d L fx (t := k.val) (n := 2 * k.val + 1) (by omega)).trans (oP_pos (F := F) d L v1))) $$ Y1
        icases Y1 with ⟨%f1, Y1⟩
        ihave Y1 := (Entails.of_eq (out_congr d L (off_10 L k v1).symm (out_inb L _) (k9_off10_inb L k k9_h5) f1)) $$ Y1
        sl_exec
        sl_for (laneV0 d L g4) $$ [F8_dst R6]
        case region =>
          intro (j : Fin k9_t2_loop.trips) _
          unfold laneV0
          iintro ⟨HA, %g, HB, %hl⟩
          sl_exec
          sl_step
          isplitl [HA]; · iexact HA
          iexists _; isplitl [HB]; · iexact HB
          ipureintro; exact lanes_step d L a4 a6 g4 g j _ _ hl
        · unfold laneV0
          isplitl [F8_dst]; · iexact F8_dst
          iexists _; isplitl [R6]; · iexact R6
          ipureintro; exact lanes_zero d L a4 a6 g4 _
        iintro %_ HI
        unfold laneV0
        icases HI with ⟨H4, %g6', H6, %hl6⟩
        have hl6 : Lanes d L a4 a6 g4 g6' 200 := Eq.mp (congrArg (Lanes d L a4 a6 g4 g6') trips2) hl6
        sl_exec
        sl_for (laneV1 d L g5) $$ [F9_dst R7]
        case region =>
          intro (j : Fin k9_t3_loop.trips) _
          unfold laneV1
          iintro ⟨HA, %g, HB, %hl⟩
          sl_exec
          sl_step
          isplitl [HA]; · iexact HA
          iexists _; isplitl [HB]; · iexact HB
          ipureintro; exact lanes_step' d L a5 a7 g5 g j _ _ hl
        · unfold laneV1
          isplitl [F9_dst]; · iexact F9_dst
          iexists _; isplitl [R7]; · iexact R7
          ipureintro; exact lanes_zero d L a5 a7 g5 _
        iintro %_ HI
        unfold laneV1
        icases HI with ⟨H5, %g7', H7, %hl7⟩
        have hl7 : Lanes d L a5 a7 g5 g7' 200 := Eq.mp (congrArg (Lanes d L a5 a7 g5 g7') trips3) hl7
        sl_exec
        sl_step
        isplitr; · iexact Hmw
        isplitl [HO]
        · iexists _; isplitr
          rotate_left
          · iexact HO
          ipureintro; intro p hp
          rcases Finset.mem_insert.mp hp with rfl | hp
          · exact .inr rfl
          rcases Finset.mem_insert.mp hp with rfl | hp
          · exact .inr rfl
          rcases Finset.mem_insert.mp hp with rfl | hp
          · exact .inr rfl
          rcases Finset.mem_insert.mp hp with rfl | hp
          · exact .inr rfl
          exact hW' p hp
        isplitl [HX F8_src F9_src]
        · iapply (Entails.of_eq (xSet_in (xP d L fx) k.val hk).symm)
          isplitl [F8_src]; · iapply (Entails.of_eq (xP_pos d L fx v0).symm); iexact F8_src
          isplitl [F9_src]; · iapply (Entails.of_eq (xP_pos d L fx v1).symm); iexact F9_src
          iexact HX
        isplitl [HOut F10_dst F11_dst]
        · iapply (Entails.of_eq (oSet_in (oMix d L fx (k.val + 1)) k.val hk (by omega)).symm)
          isplitl [F10_dst]; · iapply (Entails.of_eq ((oMix_lt d L fx (t := k.val + 1) (n := 2 * k.val - 2) (by omega)).trans (oQ_pos d L fx hm0.2)).symm); iexact F10_dst
          isplitl [F11_dst]
          · iapply (Entails.of_eq ((oMix_lt d L fx (t := k.val + 1) (n := 2 * k.val - 1) (by omega)).trans (oQ_pos d L fx (n := 2 * k.val - 1) (by have := hm1.2; rwa [show 2 * k.val + 1 - 2 = 2 * k.val - 1 by omega] at this))).symm)
            iapply (Entails.of_eq (congrArg (oqPiece d L fx) (show 2 * k.val + 1 - 2 = 2 * k.val - 1 by omega))); iexact F11_dst
          iapply (Entails.of_eq (oMix_core d L fx k.val)); iexact HOut
        isplitl [F8]
        · iapply (Entails.of_eq (congrArg (inSlotV d L fx a4 cc9_scratch4.sem) (show 2 * k.val + 2 = 2 * (k.val + 1) by ring)))
          iapply (fl_inV d L fx (off_6 L k v2) (k9_off6_inb L k k9_h3) v2 a4 cc9_scratch4.sem); iexists _, _
          isplitr
          rotate_left
          · iexact F8
          ipureintro; intro y; rfl
        isplitl [F10 H6]
        · iapply (Entails.of_eq (congrArg (outSlotV d L fx a6 cc9_scratch6.sem) (show 2 * k.val + 2 = 2 * (k.val + 1) by ring)))
          iapply (fl_outV d L fx (off_5 L k v0) (k9_off5_inb L k k9_h2) v0 a4 a6 cc9_scratch6.sem f0 g4 g6' hl6 hin4); iexists _
          isplitr
          rotate_left
          · isplitl [F10]; · iexact F10
            iexact H6
          ipureintro; intro y; rfl
        isplitl [F9]
        · iapply (Entails.of_eq (congrArg (inSlotV d L fx a5 cc9_scratch5.sem) (show 2 * k.val + 3 = 2 * (k.val + 1) + 1 by ring)))
          iapply (fl_inV d L fx (off_11 L k v3') (k9_off11_inb L k k9_h6) v3' a5 cc9_scratch5.sem); iexists _, _
          isplitr
          rotate_left
          · iexact F9
          ipureintro; intro y; rfl
        · iapply (Entails.of_eq (congrArg (outSlotV d L fx a7 cc9_scratch7.sem) (show 2 * k.val + 1 + 2 = 2 * (k.val + 1) + 1 by ring)))
          iapply (fl_outV d L fx (off_10 L k v1) (k9_off10_inb L k k9_h5) v1 a5 a7 cc9_scratch7.sem f1 g5 g7' hl7 hin5); iexists _
          isplitr
          rotate_left
          · isplitl [F11]; · iexact F11
            iexact H7
          ipureintro; intro y; rfl
      · by_cases h6 : k.val = 6
        · have hb : ¬ big L := fun hb => v3 (Or.inr ⟨by omega, hb⟩)
          -- trip 6 of a tile with fifteen pieces: no sixteenth piece to fetch
          have k9_h1 : k9_cond1 k = 1#1 := (cond1_iff k).mpr (by omega)
          have k9_h2 : k9_cond2 L k = 1#1 := cond2_iff L k
          have k9_h3 : k9_cond3 L k = 1#1 := (cond3_iff L k).mpr (by omega)
          have k9_h4 : k9_cond4 k = 1#1 := (cond4_iff k).mpr (by omega)
          have k9_h5 : k9_cond5 L k = 1#1 := (cond5_iff L k).mpr (by first | (unfold valid big at *; omega) | (unfold big at *; omega) | omega)
          have k9_h6 : ¬ k9_cond6 L k = 1#1 := fun h => absurd ((cond6_iff L k).mp h) (by first | (unfold valid big at *; omega) | (unfold big at *; omega) | omega)
          have v0 : valid L (2 * k.val) := by unfold valid big at *; omega
          have v1 : valid L (2 * k.val + 1) := by unfold valid big at *; omega
          have v2 : valid L (2 * k.val + 2) := by unfold valid big at *; omega
          have v3' : ¬ valid L (2 * k.val + 3) := by unfold valid big at *; omega
          have hm0 : 2 ≤ 2 * k.val ∧ valid L (2 * k.val - 2) := ⟨by omega, by unfold valid big at *; omega⟩
          have hm1 : 2 ≤ 2 * k.val + 1 ∧ valid L (2 * k.val + 1 - 2) := ⟨by omega, by unfold valid big at *; omega⟩
          ihave S8 := (Entails.of_eq (inSlotV_pos d L fx v0)) $$ S8
          icases S8 with ⟨%g4, %hin4, F8⟩
          ihave S9 := (Entails.of_eq (inSlotV_pos d L fx v1)) $$ S9
          icases S9 with ⟨%g5, %hin5, F9⟩
          ihave S10 := (Entails.of_eq (outSlotV_pos d L fx hm0)) $$ S10
          icases S10 with ⟨%g6, F10, R6⟩
          ihave S11 := (Entails.of_eq (outSlotV_pos d L fx hm1)) $$ S11
          icases S11 with ⟨%g7, F11, R7⟩
          ihave HX := (Entails.of_eq (xSet_out (xP d L fx) k.val hk)) $$ HX
          icases HX with ⟨X2, -, HX⟩
          ihave X2 := (Entails.of_eq (xP_pos d L fx v2)) $$ X2
          ihave X2 := (Entails.of_eq (in_congr d L (off_6 L k v2).symm (in_inb L _) (k9_off6_inb L k k9_h3) fx)) $$ X2
          ihave HOut := (Entails.of_eq (oSet_out (oMix d L fx k.val) k.val hk)) $$ HOut
          icases HOut with ⟨Y0, Y1, HOut⟩
          ihave Y0 := (Entails.of_eq ((oMix_ge d L fx (t := k.val) (n := 2 * k.val) (by omega)).trans (oP_pos (F := F) d L v0))) $$ Y0
          icases Y0 with ⟨%f0, Y0⟩
          ihave Y0 := (Entails.of_eq (out_congr d L (off_5 L k v0).symm (out_inb L _) (k9_off5_inb L k k9_h2) f0)) $$ Y0
          ihave Y1 := (Entails.of_eq ((oMix_ge d L fx (t := k.val) (n := 2 * k.val + 1) (by omega)).trans (oP_pos (F := F) d L v1))) $$ Y1
          icases Y1 with ⟨%f1, Y1⟩
          ihave Y1 := (Entails.of_eq (out_congr d L (off_10 L k v1).symm (out_inb L _) (k9_off10_inb L k k9_h5) f1)) $$ Y1
          sl_exec
          sl_for (laneV0 d L g4) $$ [F8_dst R6]
          case region =>
            intro (j : Fin k9_t2_loop.trips) _
            unfold laneV0
            iintro ⟨HA, %g, HB, %hl⟩
            sl_exec
            sl_step
            isplitl [HA]; · iexact HA
            iexists _; isplitl [HB]; · iexact HB
            ipureintro; exact lanes_step d L a4 a6 g4 g j _ _ hl
          · unfold laneV0
            isplitl [F8_dst]; · iexact F8_dst
            iexists _; isplitl [R6]; · iexact R6
            ipureintro; exact lanes_zero d L a4 a6 g4 _
          iintro %_ HI
          unfold laneV0
          icases HI with ⟨H4, %g6', H6, %hl6⟩
          have hl6 : Lanes d L a4 a6 g4 g6' 200 := Eq.mp (congrArg (Lanes d L a4 a6 g4 g6') trips2) hl6
          sl_exec
          sl_for (laneV1 d L g5) $$ [F9_dst R7]
          case region =>
            intro (j : Fin k9_t3_loop.trips) _
            unfold laneV1
            iintro ⟨HA, %g, HB, %hl⟩
            sl_exec
            sl_step
            isplitl [HA]; · iexact HA
            iexists _; isplitl [HB]; · iexact HB
            ipureintro; exact lanes_step' d L a5 a7 g5 g j _ _ hl
          · unfold laneV1
            isplitl [F9_dst]; · iexact F9_dst
            iexists _; isplitl [R7]; · iexact R7
            ipureintro; exact lanes_zero d L a5 a7 g5 _
          iintro %_ HI
          unfold laneV1
          icases HI with ⟨H5, %g7', H7, %hl7⟩
          have hl7 : Lanes d L a5 a7 g5 g7' 200 := Eq.mp (congrArg (Lanes d L a5 a7 g5 g7') trips3) hl7
          sl_exec
          sl_step
          isplitr; · iexact Hmw
          isplitl [HO]
          · iexists _; isplitr
            rotate_left
            · iexact HO
            ipureintro; intro p hp
            rcases Finset.mem_insert.mp hp with rfl | hp
            · exact .inr rfl
            rcases Finset.mem_insert.mp hp with rfl | hp
            · exact .inr rfl
            rcases Finset.mem_insert.mp hp with rfl | hp
            · exact .inr rfl
            rcases Finset.mem_insert.mp hp with rfl | hp
            · exact .inr rfl
            exact hW' p hp
          isplitl [HX F8_src F9_src]
          · iapply (Entails.of_eq (xSet_in (xP d L fx) k.val hk).symm)
            isplitl [F8_src]; · iapply (Entails.of_eq (xP_pos d L fx v0).symm); iexact F8_src
            isplitl [F9_src]; · iapply (Entails.of_eq (xP_pos d L fx v1).symm); iexact F9_src
            iexact HX
          isplitl [HOut F10_dst F11_dst]
          · iapply (Entails.of_eq (oSet_in (oMix d L fx (k.val + 1)) k.val hk (by omega)).symm)
            isplitl [F10_dst]; · iapply (Entails.of_eq ((oMix_lt d L fx (t := k.val + 1) (n := 2 * k.val - 2) (by omega)).trans (oQ_pos d L fx hm0.2)).symm); iexact F10_dst
            isplitl [F11_dst]
            · iapply (Entails.of_eq ((oMix_lt d L fx (t := k.val + 1) (n := 2 * k.val - 1) (by omega)).trans (oQ_pos d L fx (n := 2 * k.val - 1) (by have := hm1.2; rwa [show 2 * k.val + 1 - 2 = 2 * k.val - 1 by omega] at this))).symm)
              iapply (Entails.of_eq (congrArg (oqPiece d L fx) (show 2 * k.val + 1 - 2 = 2 * k.val - 1 by omega))); iexact F11_dst
            iapply (Entails.of_eq (oMix_core d L fx k.val)); iexact HOut
          isplitl [F8]
          · iapply (Entails.of_eq (congrArg (inSlotV d L fx a4 cc9_scratch4.sem) (show 2 * k.val + 2 = 2 * (k.val + 1) by ring)))
            iapply (fl_inV d L fx (off_6 L k v2) (k9_off6_inb L k k9_h3) v2 a4 cc9_scratch4.sem); iexists _, _
            isplitr
            rotate_left
            · iexact F8
            ipureintro; intro y; rfl
          isplitl [F10 H6]
          · iapply (Entails.of_eq (congrArg (outSlotV d L fx a6 cc9_scratch6.sem) (show 2 * k.val + 2 = 2 * (k.val + 1) by ring)))
            iapply (fl_outV d L fx (off_5 L k v0) (k9_off5_inb L k k9_h2) v0 a4 a6 cc9_scratch6.sem f0 g4 g6' hl6 hin4); iexists _
            isplitr
            rotate_left
            · isplitl [F10]; · iexact F10
              iexact H6
            ipureintro; intro y; rfl
          isplitl [H5 F9]
          · iapply (Entails.of_eq (congrArg (inSlotV d L fx a5 cc9_scratch5.sem) (show 2 * k.val + 3 = 2 * (k.val + 1) + 1 by ring)))
            iapply (Entails.of_eq (inSlotV_neg d L fx v3').symm)
            isplitl [H5]; · iexists _; iexact H5
            iexact F9
          · iapply (Entails.of_eq (congrArg (outSlotV d L fx a7 cc9_scratch7.sem) (show 2 * k.val + 1 + 2 = 2 * (k.val + 1) + 1 by ring)))
            iapply (fl_outV d L fx (off_10 L k v1) (k9_off10_inb L k k9_h5) v1 a5 a7 cc9_scratch7.sem f1 g5 g7' hl7 hin5); iexists _
            isplitr
            rotate_left
            · isplitl [F11]; · iexact F11
              iexact H7
            ipureintro; intro y; rfl
        · have h7 : k.val = 7 := by unfold valid at v3; omega
          by_cases hb : big L
          · -- the last trip of a tile with sixteen pieces: nothing more to fetch
            have k9_h1 : k9_cond1 k = 1#1 := (cond1_iff k).mpr (by omega)
            have k9_h2 : k9_cond2 L k = 1#1 := cond2_iff L k
            have k9_h3 : ¬ k9_cond3 L k = 1#1 := fun h => absurd ((cond3_iff L k).mp h) (by omega)
            have k9_h4 : k9_cond4 k = 1#1 := (cond4_iff k).mpr (by omega)
            have k9_h5 : k9_cond5 L k = 1#1 := (cond5_iff L k).mpr (by first | (unfold valid big at *; omega) | (unfold big at *; omega) | omega)
            have k9_h6 : ¬ k9_cond6 L k = 1#1 := fun h => absurd ((cond6_iff L k).mp h) (by first | (unfold valid big at *; omega) | (unfold big at *; omega) | omega)
            have v0 : valid L (2 * k.val) := by unfold valid big at *; omega
            have v1 : valid L (2 * k.val + 1) := by unfold valid big at *; omega
            have v2 : ¬ valid L (2 * k.val + 2) := by unfold valid big at *; omega
            have v3' : ¬ valid L (2 * k.val + 3) := by unfold valid big at *; omega
            have hm0 : 2 ≤ 2 * k.val ∧ valid L (2 * k.val - 2) := ⟨by omega, by unfold valid big at *; omega⟩
            have hm1 : 2 ≤ 2 * k.val + 1 ∧ valid L (2 * k.val + 1 - 2) := ⟨by omega, by unfold valid big at *; omega⟩
            ihave S8 := (Entails.of_eq (inSlotV_pos d L fx v0)) $$ S8
            icases S8 with ⟨%g4, %hin4, F8⟩
            ihave S9 := (Entails.of_eq (inSlotV_pos d L fx v1)) $$ S9
            icases S9 with ⟨%g5, %hin5, F9⟩
            ihave S10 := (Entails.of_eq (outSlotV_pos d L fx hm0)) $$ S10
            icases S10 with ⟨%g6, F10, R6⟩
            ihave S11 := (Entails.of_eq (outSlotV_pos d L fx hm1)) $$ S11
            icases S11 with ⟨%g7, F11, R7⟩
            ihave HX := (Entails.of_eq (xSet_out (xP d L fx) k.val hk)) $$ HX
            icases HX with ⟨-, -, HX⟩
            ihave HOut := (Entails.of_eq (oSet_out (oMix d L fx k.val) k.val hk)) $$ HOut
            icases HOut with ⟨Y0, Y1, HOut⟩
            ihave Y0 := (Entails.of_eq ((oMix_ge d L fx (t := k.val) (n := 2 * k.val) (by omega)).trans (oP_pos (F := F) d L v0))) $$ Y0
            icases Y0 with ⟨%f0, Y0⟩
            ihave Y0 := (Entails.of_eq (out_congr d L (off_5 L k v0).symm (out_inb L _) (k9_off5_inb L k k9_h2) f0)) $$ Y0
            ihave Y1 := (Entails.of_eq ((oMix_ge d L fx (t := k.val) (n := 2 * k.val + 1) (by omega)).trans (oP_pos (F := F) d L v1))) $$ Y1
            icases Y1 with ⟨%f1, Y1⟩
            ihave Y1 := (Entails.of_eq (out_congr d L (off_10 L k v1).symm (out_inb L _) (k9_off10_inb L k k9_h5) f1)) $$ Y1
            sl_exec
            sl_for (laneV0 d L g4) $$ [F8_dst R6]
            case region =>
              intro (j : Fin k9_t2_loop.trips) _
              unfold laneV0
              iintro ⟨HA, %g, HB, %hl⟩
              sl_exec
              sl_step
              isplitl [HA]; · iexact HA
              iexists _; isplitl [HB]; · iexact HB
              ipureintro; exact lanes_step d L a4 a6 g4 g j _ _ hl
            · unfold laneV0
              isplitl [F8_dst]; · iexact F8_dst
              iexists _; isplitl [R6]; · iexact R6
              ipureintro; exact lanes_zero d L a4 a6 g4 _
            iintro %_ HI
            unfold laneV0
            icases HI with ⟨H4, %g6', H6, %hl6⟩
            have hl6 : Lanes d L a4 a6 g4 g6' 200 := Eq.mp (congrArg (Lanes d L a4 a6 g4 g6') trips2) hl6
            sl_exec
            sl_for (laneV1 d L g5) $$ [F9_dst R7]
            case region =>
              intro (j : Fin k9_t3_loop.trips) _
              unfold laneV1
              iintro ⟨HA, %g, HB, %hl⟩
              sl_exec
              sl_step
              isplitl [HA]; · iexact HA
              iexists _; isplitl [HB]; · iexact HB
              ipureintro; exact lanes_step' d L a5 a7 g5 g j _ _ hl
            · unfold laneV1
              isplitl [F9_dst]; · iexact F9_dst
              iexists _; isplitl [R7]; · iexact R7
              ipureintro; exact lanes_zero d L a5 a7 g5 _
            iintro %_ HI
            unfold laneV1
            icases HI with ⟨H5, %g7', H7, %hl7⟩
            have hl7 : Lanes d L a5 a7 g5 g7' 200 := Eq.mp (congrArg (Lanes d L a5 a7 g5 g7') trips3) hl7
            sl_exec
            sl_step
            isplitr; · iexact Hmw
            isplitl [HO]
            · iexists _; isplitr
              rotate_left
              · iexact HO
              ipureintro; intro p hp
              rcases Finset.mem_insert.mp hp with rfl | hp
              · exact .inr rfl
              rcases Finset.mem_insert.mp hp with rfl | hp
              · exact .inr rfl
              rcases Finset.mem_insert.mp hp with rfl | hp
              · exact .inr rfl
              rcases Finset.mem_insert.mp hp with rfl | hp
              · exact .inr rfl
              exact hW' p hp
            isplitl [HX F8_src F9_src]
            · iapply (Entails.of_eq (xSet_in (xP d L fx) k.val hk).symm)
              isplitl [F8_src]; · iapply (Entails.of_eq (xP_pos d L fx v0).symm); iexact F8_src
              isplitl [F9_src]; · iapply (Entails.of_eq (xP_pos d L fx v1).symm); iexact F9_src
              iexact HX
            isplitl [HOut F10_dst F11_dst]
            · iapply (Entails.of_eq (oSet_in (oMix d L fx (k.val + 1)) k.val hk (by omega)).symm)
              isplitl [F10_dst]; · iapply (Entails.of_eq ((oMix_lt d L fx (t := k.val + 1) (n := 2 * k.val - 2) (by omega)).trans (oQ_pos d L fx hm0.2)).symm); iexact F10_dst
              isplitl [F11_dst]
              · iapply (Entails.of_eq ((oMix_lt d L fx (t := k.val + 1) (n := 2 * k.val - 1) (by omega)).trans (oQ_pos d L fx (n := 2 * k.val - 1) (by have := hm1.2; rwa [show 2 * k.val + 1 - 2 = 2 * k.val - 1 by omega] at this))).symm)
                iapply (Entails.of_eq (congrArg (oqPiece d L fx) (show 2 * k.val + 1 - 2 = 2 * k.val - 1 by omega))); iexact F11_dst
              iapply (Entails.of_eq (oMix_core d L fx k.val)); iexact HOut
            isplitl [H4 F8]
            · iapply (Entails.of_eq (congrArg (inSlotV d L fx a4 cc9_scratch4.sem) (show 2 * k.val + 2 = 2 * (k.val + 1) by ring)))
              iapply (Entails.of_eq (inSlotV_neg d L fx v2).symm)
              isplitl [H4]; · iexists _; iexact H4
              iexact F8
            isplitl [F10 H6]
            · iapply (Entails.of_eq (congrArg (outSlotV d L fx a6 cc9_scratch6.sem) (show 2 * k.val + 2 = 2 * (k.val + 1) by ring)))
              iapply (fl_outV d L fx (off_5 L k v0) (k9_off5_inb L k k9_h2) v0 a4 a6 cc9_scratch6.sem f0 g4 g6' hl6 hin4); iexists _
              isplitr
              rotate_left
              · isplitl [F10]; · iexact F10
                iexact H6
              ipureintro; intro y; rfl
            isplitl [H5 F9]
            · iapply (Entails.of_eq (congrArg (inSlotV d L fx a5 cc9_scratch5.sem) (show 2 * k.val + 3 = 2 * (k.val + 1) + 1 by ring)))
              iapply (Entails.of_eq (inSlotV_neg d L fx v3').symm)
              isplitl [H5]; · iexists _; iexact H5
              iexact F9
            · iapply (Entails.of_eq (congrArg (outSlotV d L fx a7 cc9_scratch7.sem) (show 2 * k.val + 1 + 2 = 2 * (k.val + 1) + 1 by ring)))
              iapply (fl_outV d L fx (off_10 L k v1) (k9_off10_inb L k k9_h5) v1 a5 a7 cc9_scratch7.sem f1 g5 g7' hl7 hin5); iexists _
              isplitr
              rotate_left
              · isplitl [F11]; · iexact F11
                iexact H7
              ipureintro; intro y; rfl
          · -- the last trip of a tile with fifteen pieces: the second slot only drains
            have k9_h1 : k9_cond1 k = 1#1 := (cond1_iff k).mpr (by omega)
            have k9_h2 : k9_cond2 L k = 1#1 := cond2_iff L k
            have k9_h3 : ¬ k9_cond3 L k = 1#1 := fun h => absurd ((cond3_iff L k).mp h) (by omega)
            have k9_h4 : k9_cond4 k = 1#1 := (cond4_iff k).mpr (by omega)
            have k9_h5 : ¬ k9_cond5 L k = 1#1 := fun h => absurd ((cond5_iff L k).mp h) (by first | (unfold valid big at *; omega) | (unfold big at *; omega) | omega)
            have k9_h6 : ¬ k9_cond6 L k = 1#1 := fun h => absurd ((cond6_iff L k).mp h) (by first | (unfold valid big at *; omega) | (unfold big at *; omega) | omega)
            have v0 : valid L (2 * k.val) := by unfold valid big at *; omega
            have v1 : ¬ valid L (2 * k.val + 1) := by unfold valid big at *; omega
            have v2 : ¬ valid L (2 * k.val + 2) := by unfold valid big at *; omega
            have v3' : ¬ valid L (2 * k.val + 3) := by unfold valid big at *; omega
            have hm0 : 2 ≤ 2 * k.val ∧ valid L (2 * k.val - 2) := ⟨by omega, by unfold valid big at *; omega⟩
            have hm1 : 2 ≤ 2 * k.val + 1 ∧ valid L (2 * k.val + 1 - 2) := ⟨by omega, by unfold valid big at *; omega⟩
            ihave S8 := (Entails.of_eq (inSlotV_pos d L fx v0)) $$ S8
            icases S8 with ⟨%g4, %hin4, F8⟩
            ihave S9 := (Entails.of_eq (inSlotV_neg d L fx v1)) $$ S9
            icases S9 with ⟨⟨%g5, H5⟩, F9⟩
            ihave S10 := (Entails.of_eq (outSlotV_pos d L fx hm0)) $$ S10
            icases S10 with ⟨%g6, F10, R6⟩
            ihave S11 := (Entails.of_eq (outSlotV_pos d L fx hm1)) $$ S11
            icases S11 with ⟨%g7, F11, R7⟩
            ihave HX := (Entails.of_eq (xSet_out (xP d L fx) k.val hk)) $$ HX
            icases HX with ⟨-, -, HX⟩
            ihave HOut := (Entails.of_eq (oSet_out (oMix d L fx k.val) k.val hk)) $$ HOut
            icases HOut with ⟨Y0, -, HOut⟩
            ihave Y0 := (Entails.of_eq ((oMix_ge d L fx (t := k.val) (n := 2 * k.val) (by omega)).trans (oP_pos (F := F) d L v0))) $$ Y0
            icases Y0 with ⟨%f0, Y0⟩
            ihave Y0 := (Entails.of_eq (out_congr d L (off_5 L k v0).symm (out_inb L _) (k9_off5_inb L k k9_h2) f0)) $$ Y0
            sl_exec
            sl_for (laneV0 d L g4) $$ [F8_dst R6]
            case region =>
              intro (j : Fin k9_t2_loop.trips) _
              unfold laneV0
              iintro ⟨HA, %g, HB, %hl⟩
              sl_exec
              sl_step
              isplitl [HA]; · iexact HA
              iexists _; isplitl [HB]; · iexact HB
              ipureintro; exact lanes_step d L a4 a6 g4 g j _ _ hl
            · unfold laneV0
              isplitl [F8_dst]; · iexact F8_dst
              iexists _; isplitl [R6]; · iexact R6
              ipureintro; exact lanes_zero d L a4 a6 g4 _
            iintro %_ HI
            unfold laneV0
            icases HI with ⟨H4, %g6', H6, %hl6⟩
            have hl6 : Lanes d L a4 a6 g4 g6' 200 := Eq.mp (congrArg (Lanes d L a4 a6 g4 g6') trips2) hl6
            sl_exec
            sl_step
            isplitr; · iexact Hmw
            isplitl [HO]
            · iexists _; isplitr
              rotate_left
              · iexact HO
              ipureintro; intro p hp
              rcases Finset.mem_insert.mp hp with rfl | hp
              · exact .inr rfl
              rcases Finset.mem_insert.mp hp with rfl | hp
              · exact .inr rfl
              rcases Finset.mem_insert.mp hp with rfl | hp
              · exact .inr rfl
              exact hW' p hp
            isplitl [HX F8_src]
            · iapply (Entails.of_eq (xSet_in (xP d L fx) k.val hk).symm)
              isplitl [F8_src]; · iapply (Entails.of_eq (xP_pos d L fx v0).symm); iexact F8_src
              isplitr; · iapply (Entails.of_eq (xP_neg d L fx v1).symm); iempintro
              iexact HX
            isplitl [HOut F10_dst F11_dst]
            · iapply (Entails.of_eq (oSet_in (oMix d L fx (k.val + 1)) k.val hk (by omega)).symm)
              isplitl [F10_dst]; · iapply (Entails.of_eq ((oMix_lt d L fx (t := k.val + 1) (n := 2 * k.val - 2) (by omega)).trans (oQ_pos d L fx hm0.2)).symm); iexact F10_dst
              isplitl [F11_dst]
              · iapply (Entails.of_eq ((oMix_lt d L fx (t := k.val + 1) (n := 2 * k.val - 1) (by omega)).trans (oQ_pos d L fx (n := 2 * k.val - 1) (by have := hm1.2; rwa [show 2 * k.val + 1 - 2 = 2 * k.val - 1 by omega] at this))).symm)
                iapply (Entails.of_eq (congrArg (oqPiece d L fx) (show 2 * k.val + 1 - 2 = 2 * k.val - 1 by omega))); iexact F11_dst
              iapply (Entails.of_eq (oMix_core d L fx k.val)); iexact HOut
            isplitl [H4 F8]
            · iapply (Entails.of_eq (congrArg (inSlotV d L fx a4 cc9_scratch4.sem) (show 2 * k.val + 2 = 2 * (k.val + 1) by ring)))
              iapply (Entails.of_eq (inSlotV_neg d L fx v2).symm)
              isplitl [H4]; · iexists _; iexact H4
              iexact F8
            isplitl [F10 H6]
            · iapply (Entails.of_eq (congrArg (outSlotV d L fx a6 cc9_scratch6.sem) (show 2 * k.val + 2 = 2 * (k.val + 1) by ring)))
              iapply (fl_outV d L fx (off_5 L k v0) (k9_off5_inb L k k9_h2) v0 a4 a6 cc9_scratch6.sem f0 g4 g6' hl6 hin4); iexists _
              isplitr
              rotate_left
              · isplitl [F10]; · iexact F10
                iexact H6
              ipureintro; intro y; rfl
            isplitl [H5 F9]
            · iapply (Entails.of_eq (congrArg (inSlotV d L fx a5 cc9_scratch5.sem) (show 2 * k.val + 3 = 2 * (k.val + 1) + 1 by ring)))
              iapply (Entails.of_eq (inSlotV_neg d L fx v3').symm)
              isplitl [H5]; · iexists _; iexact H5
              iexact F9
            · iapply (Entails.of_eq (outSlotV_neg d L fx (m := 2 * (k.val + 1) + 1) (by intro h; apply v1; have := h.2; rwa [show 2 * (k.val + 1) + 1 - 2 = 2 * k.val + 1 by omega] at this)).symm)
              isplitl [R7]; · iexists _; iexact R7
              iexact F11
    · have hk0 : k.val = 0 := by omega
      -- the first trip: nothing to drain
      have k9_h1 : ¬ k9_cond1 k = 1#1 := fun h => absurd ((cond1_iff k).mp h) (by omega)
      have k9_h2 : k9_cond2 L k = 1#1 := cond2_iff L k
      have k9_h3 : k9_cond3 L k = 1#1 := (cond3_iff L k).mpr (by omega)
      have k9_h4 : ¬ k9_cond4 k = 1#1 := fun h => absurd ((cond4_iff k).mp h) (by omega)
      have k9_h5 : k9_cond5 L k = 1#1 := (cond5_iff L k).mpr (by first | (unfold valid big at *; omega) | (unfold big at *; omega) | omega)
      have k9_h6 : k9_cond6 L k = 1#1 := (cond6_iff L k).mpr (by first | (unfold valid big at *; omega) | (unfold big at *; omega) | omega)
      have v0 : valid L (2 * k.val) := by unfold valid big at *; omega
      have v1 : valid L (2 * k.val + 1) := by unfold valid big at *; omega
      have v2 : valid L (2 * k.val + 2) := by unfold valid big at *; omega
      have v3' : valid L (2 * k.val + 3) := by unfold valid big at *; omega
      have hm0 : ¬ (2 ≤ 2 * k.val ∧ valid L (2 * k.val - 2)) := by omega
      have hm1 : ¬ (2 ≤ 2 * k.val + 1 ∧ valid L (2 * k.val + 1 - 2)) := by omega
      ihave S8 := (Entails.of_eq (inSlotV_pos d L fx v0)) $$ S8
      icases S8 with ⟨%g4, %hin4, F8⟩
      ihave S9 := (Entails.of_eq (inSlotV_pos d L fx v1)) $$ S9
      icases S9 with ⟨%g5, %hin5, F9⟩
      ihave S10 := (Entails.of_eq (outSlotV_neg d L fx hm0)) $$ S10
      icases S10 with ⟨⟨%g6, R6⟩, F10⟩
      ihave S11 := (Entails.of_eq (outSlotV_neg d L fx hm1)) $$ S11
      icases S11 with ⟨⟨%g7, R7⟩, F11⟩
      ihave HX := (Entails.of_eq (xSet_out (xP d L fx) k.val hk)) $$ HX
      icases HX with ⟨X2, X3, HX⟩
      ihave X2 := (Entails.of_eq (xP_pos d L fx v2)) $$ X2
      ihave X2 := (Entails.of_eq (in_congr d L (off_6 L k v2).symm (in_inb L _) (k9_off6_inb L k k9_h3) fx)) $$ X2
      ihave X3 := (Entails.of_eq (xP_pos d L fx v3')) $$ X3
      ihave X3 := (Entails.of_eq (in_congr d L (off_11 L k v3').symm (in_inb L _) (k9_off11_inb L k k9_h6) fx)) $$ X3
      ihave HOut := (Entails.of_eq (oSet_out (oMix d L fx k.val) k.val hk)) $$ HOut
      icases HOut with ⟨Y0, Y1, HOut⟩
      ihave Y0 := (Entails.of_eq ((oMix_ge d L fx (t := k.val) (n := 2 * k.val) (by omega)).trans (oP_pos (F := F) d L v0))) $$ Y0
      icases Y0 with ⟨%f0, Y0⟩
      ihave Y0 := (Entails.of_eq (out_congr d L (off_5 L k v0).symm (out_inb L _) (k9_off5_inb L k k9_h2) f0)) $$ Y0
      ihave Y1 := (Entails.of_eq ((oMix_ge d L fx (t := k.val) (n := 2 * k.val + 1) (by omega)).trans (oP_pos (F := F) d L v1))) $$ Y1
      icases Y1 with ⟨%f1, Y1⟩
      ihave Y1 := (Entails.of_eq (out_congr d L (off_10 L k v1).symm (out_inb L _) (k9_off10_inb L k k9_h5) f1)) $$ Y1
      sl_exec
      sl_for (laneV0 d L g4) $$ [F8_dst R6]
      case region =>
        intro (j : Fin k9_t2_loop.trips) _
        unfold laneV0
        iintro ⟨HA, %g, HB, %hl⟩
        sl_exec
        sl_step
        isplitl [HA]; · iexact HA
        iexists _; isplitl [HB]; · iexact HB
        ipureintro; exact lanes_step d L a4 a6 g4 g j _ _ hl
      · unfold laneV0
        isplitl [F8_dst]; · iexact F8_dst
        iexists _; isplitl [R6]; · iexact R6
        ipureintro; exact lanes_zero d L a4 a6 g4 _
      iintro %_ HI
      unfold laneV0
      icases HI with ⟨H4, %g6', H6, %hl6⟩
      have hl6 : Lanes d L a4 a6 g4 g6' 200 := Eq.mp (congrArg (Lanes d L a4 a6 g4 g6') trips2) hl6
      sl_exec
      sl_for (laneV1 d L g5) $$ [F9_dst R7]
      case region =>
        intro (j : Fin k9_t3_loop.trips) _
        unfold laneV1
        iintro ⟨HA, %g, HB, %hl⟩
        sl_exec
        sl_step
        isplitl [HA]; · iexact HA
        iexists _; isplitl [HB]; · iexact HB
        ipureintro; exact lanes_step' d L a5 a7 g5 g j _ _ hl
      · unfold laneV1
        isplitl [F9_dst]; · iexact F9_dst
        iexists _; isplitl [R7]; · iexact R7
        ipureintro; exact lanes_zero d L a5 a7 g5 _
      iintro %_ HI
      unfold laneV1
      icases HI with ⟨H5, %g7', H7, %hl7⟩
      have hl7 : Lanes d L a5 a7 g5 g7' 200 := Eq.mp (congrArg (Lanes d L a5 a7 g5 g7') trips3) hl7
      sl_exec
      sl_step
      isplitr; · iexact Hmw
      isplitl [HO]
      · iexists _; isplitr
        rotate_left
        · iexact HO
        ipureintro; intro p hp
        rcases Finset.mem_insert.mp hp with rfl | hp
        · exact .inr rfl
        rcases Finset.mem_insert.mp hp with rfl | hp
        · exact .inr rfl
        exact hW' p hp
      isplitl [HX F8_src F9_src]
      · iapply (Entails.of_eq (xSet_in (xP d L fx) k.val hk).symm)
        isplitl [F8_src]; · iapply (Entails.of_eq (xP_pos d L fx v0).symm); iexact F8_src
        isplitl [F9_src]; · iapply (Entails.of_eq (xP_pos d L fx v1).symm); iexact F9_src
        iexact HX
      isplitl [HOut]
      · iapply (Entails.of_eq (congrArg (fun s => bigSep s (oMix d L fx (k.val + 1))) (show oCore k.val = oSet (k.val + 1) by rw [hk0]; decide)))
        iapply (Entails.of_eq (oMix_core d L fx k.val)); iexact HOut
      isplitl [F8]
      · iapply (Entails.of_eq (congrArg (inSlotV d L fx a4 cc9_scratch4.sem) (show 2 * k.val + 2 = 2 * (k.val + 1) by ring)))
        iapply (fl_inV d L fx (off_6 L k v2) (k9_off6_inb L k k9_h3) v2 a4 cc9_scratch4.sem); iexists _, _
        isplitr
        rotate_left
        · iexact F8
        ipureintro; intro y; rfl
      isplitl [F10 H6]
      · iapply (Entails.of_eq (congrArg (outSlotV d L fx a6 cc9_scratch6.sem) (show 2 * k.val + 2 = 2 * (k.val + 1) by ring)))
        iapply (fl_outV d L fx (off_5 L k v0) (k9_off5_inb L k k9_h2) v0 a4 a6 cc9_scratch6.sem f0 g4 g6' hl6 hin4); iexists _
        isplitr
        rotate_left
        · isplitl [F10]; · iexact F10
          iexact H6
        ipureintro; intro y; rfl
      isplitl [F9]
      · iapply (Entails.of_eq (congrArg (inSlotV d L fx a5 cc9_scratch5.sem) (show 2 * k.val + 3 = 2 * (k.val + 1) + 1 by ring)))
        iapply (fl_inV d L fx (off_11 L k v3') (k9_off11_inb L k k9_h6) v3' a5 cc9_scratch5.sem); iexists _, _
        isplitr
        rotate_left
        · iexact F9
        ipureintro; intro y; rfl
      · iapply (Entails.of_eq (congrArg (outSlotV d L fx a7 cc9_scratch7.sem) (show 2 * k.val + 1 + 2 = 2 * (k.val + 1) + 1 by ring)))
        iapply (fl_outV d L fx (off_10 L k v1) (k9_off10_inb L k k9_h5) v1 a5 a7 cc9_scratch7.sem f1 g5 g7' hl7 hin5); iexists _
        isplitr
        rotate_left
        · isplitl [F11]; · iexact F11
          iexact H7
        ipureintro; intro y; rfl
  · unfold invV
    isplitr; · iexact Hmw
    isplitl [HO]
    · iexists W; isplitr
      · ipureintro; exact fun p hp => .inl hp
      · iexact HO
    isplitl [HX]; · iexact HX
    isplitl [HOut]; · iapply (Entails.of_eq (oMix_zero d L fx).symm); iexact HOut
    isplitl [S8]; · iexact S8
    isplitl [H6 Hs10]
    · rw [outSlotV_neg d L fx (by omega)]; isplitl [H6]; · iexists _; iexact H6
      iexact Hs10
    isplitl [S9]; · iexact S9
    rw [outSlotV_neg d L fx (by omega)]; isplitl [H7]; · iexists _; iexact H7
    iexact Hs11
  iintro %acc' HI
  ihave HI := (Entails.of_eq (congrArg (fun t => invV d L O W fx t acc') trips1)) $$ HI
  unfold invV
  icases HI with ⟨-, ⟨%W', %hW', HO⟩, HX, HOut, S8, S10, S9, S11⟩
  have nv16 : ¬ valid L (2 * 8) := by unfold valid; omega
  have nv17 : ¬ valid L (2 * 8 + 1) := by unfold valid; omega
  have hm14 : 2 ≤ 2 * 8 ∧ valid L (2 * 8 - 2) := ⟨by omega, Or.inl (by omega)⟩
  ihave S8 := (Entails.of_eq (inSlotV_neg d L fx nv16)) $$ S8
  icases S8 with ⟨⟨%g4', H4⟩, Hs8⟩
  ihave S9 := (Entails.of_eq (inSlotV_neg d L fx nv17)) $$ S9
  icases S9 with ⟨⟨%g5', H5⟩, Hs9⟩
  ihave S10 := (Entails.of_eq (outSlotV_pos d L fx hm14)) $$ S10
  icases S10 with ⟨%g6', F10, R6⟩
  by_cases hb : big L
  · have k9_h8 : k9_cond8 L = 1#1 := (cond8_iff L).mpr hb
    have hm15 : 2 ≤ 2 * 8 + 1 ∧ valid L (2 * 8 + 1 - 2) := ⟨by omega, Or.inr ⟨by omega, hb⟩⟩
    ihave S11 := (Entails.of_eq (outSlotV_pos d L fx hm15)) $$ S11
    icases S11 with ⟨%g7', F11, R7⟩
    sl_exec
    sl_step
    isplitl [HX]; · iapply (xRange_end d L fx); iexact HX
    isplitl [HOut F10_dst F11_dst]
    · iapply (Entails.of_eq (oRange_end (oQ d L fx)).symm)
      isplitl [F10_dst]; · iapply (Entails.of_eq (oQ_pos d L fx hm14.2).symm); iexact F10_dst
      isplitl [F11_dst]; · iapply (Entails.of_eq (oQ_pos d L fx hm15.2).symm); iexact F11_dst
      iapply (Entails.of_eq (oMix_end d L fx)); iexact HOut
    isplitl [H4]; · iexists _; iexact H4
    isplitl [H5]; · iexists _; iexact H5
    isplitl [R6]; · iexists _; iexact R6
    isplitl [R7]; · iexists _; iexact R7
    isplitl [Hs8]; · iexact Hs8
    isplitl [Hs9]; · iexact Hs9
    isplitl [F10]; · iexact F10
    isplitl [F11]; · iexact F11
    isplitl [HO]
    · iexists _; isplitr
      rotate_left
      · iexact HO
      ipureintro; intro p hp
      rcases Finset.mem_insert.mp hp with rfl | hp
      · exact .inr rfl
      rcases Finset.mem_insert.mp hp with rfl | hp
      · exact .inr rfl
      exact hW' p hp
    iexact HR
  · have k9_h8 : ¬ k9_cond8 L = 1#1 := fun h => hb ((cond8_iff L).mp h)
    have hm15 : ¬ (2 ≤ 2 * 8 + 1 ∧ valid L (2 * 8 + 1 - 2)) := by intro h; have := h.2; unfold valid at this; omega
    ihave S11 := (Entails.of_eq (outSlotV_neg d L fx hm15)) $$ S11
    icases S11 with ⟨⟨%g7', R7⟩, F11⟩
    sl_exec
    sl_step
    isplitl [HX]; · iapply (xRange_end d L fx); iexact HX
    isplitl [HOut F10_dst]
    · iapply (Entails.of_eq (oRange_end (oQ d L fx)).symm)
      isplitl [F10_dst]; · iapply (Entails.of_eq (oQ_pos d L fx hm14.2).symm); iexact F10_dst
      isplitr; · iapply (Entails.of_eq (oQ_neg d L fx (n := 15) (by unfold valid; omega)).symm); iempintro
      iapply (Entails.of_eq (oMix_end d L fx)); iexact HOut
    isplitl [H4]; · iexists _; iexact H4
    isplitl [H5]; · iexists _; iexact H5
    isplitl [R6]; · iexists _; iexact R6
    isplitl [R7]; · iexists _; iexact R7
    isplitl [Hs8]; · iexact Hs8
    isplitl [Hs9]; · iexact Hs9
    isplitl [F10]; · iexact F10
    isplitl [F11]; · iexact F11
    isplitl [HO]
    · iexists _; isplitr
      rotate_left
      · iexact HO
      ipureintro; intro p hp
      rcases Finset.mem_insert.mp hp with rfl | hp
      · exact .inr rfl
      exact hW' p hp
    iexact HR

/-! The subcore's scoped storage: the four staging buffers and the four semaphores of this call, and the rest. -/

abbrev c8 : GSem nD τ sig := (thr d L, SemLoc.dma cc9_scratch4.sem)
abbrev c9 : GSem nD τ sig := (thr d L, SemLoc.dma cc9_scratch5.sem)
abbrev c10 : GSem nD τ sig := (thr d L, SemLoc.dma cc9_scratch6.sem)
abbrev c11 : GSem nD τ sig := (thr d L, SemLoc.dma cc9_scratch7.sem)

omit [FloatOps F] in
theorem ownSems0_V :
    (ownSems0 (thr d L) : sProp 𝕄)
      = iprop(semVal (c8 d L) 0 ∗ semVal (c9 d L) 0 ∗ semVal (c10 d L) 0 ∗ semVal (c11 d L) 0
          ∗ bigSep (((((ownCells (thr d L)).erase (c8 d L)).erase (c9 d L)).erase (c10 d L)).erase (c11 d L)) fun g => semVal g 0) := by
  unfold SparseCore.Cfg.ownSems0
  rw [SparseCore.bigSep_erase' ((mem_ownCells (g := c8 d L)).mpr ⟨rfl, by
      show (SemLoc.dma cc9_scratch4.sem : SemLoc sig).isScoped .scVector = true; decide⟩),
    SparseCore.bigSep_erase' (Finset.mem_erase.mpr ⟨fun e => absurd (Prod.mk.inj e).2 (by decide), (mem_ownCells (g := c9 d L)).mpr ⟨rfl, by
      show (SemLoc.dma cc9_scratch5.sem : SemLoc sig).isScoped .scVector = true; decide⟩⟩),
    SparseCore.bigSep_erase' (Finset.mem_erase.mpr ⟨fun e => absurd (Prod.mk.inj e).2 (by decide), Finset.mem_erase.mpr ⟨fun e => absurd (Prod.mk.inj e).2 (by decide),
      (mem_ownCells (g := c10 d L)).mpr ⟨rfl, by show (SemLoc.dma cc9_scratch6.sem : SemLoc sig).isScoped .scVector = true; decide⟩⟩⟩),
    SparseCore.bigSep_erase' (Finset.mem_erase.mpr ⟨fun e => absurd (Prod.mk.inj e).2 (by decide), Finset.mem_erase.mpr ⟨fun e => absurd (Prod.mk.inj e).2 (by decide),
      Finset.mem_erase.mpr ⟨fun e => absurd (Prod.mk.inj e).2 (by decide),
      (mem_ownCells (g := c11 d L)).mpr ⟨rfl, by show (SemLoc.dma cc9_scratch7.sem : SemLoc sig).isScoped .scVector = true; decide⟩⟩⟩⟩)]

abbrev pV (L : grid9.Coords) : Proc τ := Proc.scVector (cV L) (jV L)

omit [FloatOps F] in
theorem ownBufs_V :
    (ownBufs (thr d L) : sProp 𝕄)
      = iprop((∃ f, (thr d L).loc cc9_scratch0 ↦{fullShare} f) ∗ (∃ f, (thr d L).loc cc9_scratch1 ↦{fullShare} f)
          ∗ (∃ f, (thr d L).loc cc9_scratch2 ↦{fullShare} f) ∗ (∃ f, (thr d L).loc cc9_scratch3 ↦{fullShare} f)
          ∗ bigSep (((((ownRefs (τ := τ) (pV L)).erase ((pV L).devRef cc9_scratch0)).erase ((pV L).devRef cc9_scratch1)).erase
              ((pV L).devRef cc9_scratch2)).erase ((pV L).devRef cc9_scratch3))
              fun b => iprop(∃ f, ((d, b) : Loc nD τ sig) ↦{fullShare} f)) := by
  unfold SparseCore.Cfg.ownBufs
  refine (SparseCore.bigSep_erase' (SparseCore.Cfg.mem_ownRefs_of_owner (p := pV L) (b := (pV L).devRef cc9_scratch0) rfl)).trans ?_
  rw [SparseCore.bigSep_erase' (Finset.mem_erase.mpr ⟨fun e => absurd (Proc.devRef_injective _ e) (show (cc9_scratch1 : Ref sig .scVector) ≠ cc9_scratch0 by decide),
      SparseCore.Cfg.mem_ownRefs_of_owner (p := pV L) (b := (pV L).devRef cc9_scratch1) rfl⟩),
    SparseCore.bigSep_erase' (Finset.mem_erase.mpr ⟨fun e => absurd (Proc.devRef_injective _ e) (show (cc9_scratch2 : Ref sig .scVector) ≠ cc9_scratch1 by decide),
      Finset.mem_erase.mpr ⟨fun e => absurd (Proc.devRef_injective _ e) (show (cc9_scratch2 : Ref sig .scVector) ≠ cc9_scratch0 by decide),
      SparseCore.Cfg.mem_ownRefs_of_owner (p := pV L) (b := (pV L).devRef cc9_scratch2) rfl⟩⟩),
    SparseCore.bigSep_erase' (Finset.mem_erase.mpr ⟨fun e => absurd (Proc.devRef_injective _ e) (show (cc9_scratch3 : Ref sig .scVector) ≠ cc9_scratch2 by decide),
      Finset.mem_erase.mpr ⟨fun e => absurd (Proc.devRef_injective _ e) (show (cc9_scratch3 : Ref sig .scVector) ≠ cc9_scratch1 by decide),
      Finset.mem_erase.mpr ⟨fun e => absurd (Proc.devRef_injective _ e) (show (cc9_scratch3 : Ref sig .scVector) ≠ cc9_scratch0 by decide),
      SparseCore.Cfg.mem_ownRefs_of_owner (p := pV L) (b := (pV L).devRef cc9_scratch3) rfl⟩⟩⟩)]

/-- The rest of the subcore's scoped storage, which the task does not touch. -/
def restR : sProp 𝕄 :=
  iprop((bigSep (((((ownRefs (τ := τ) (pV L)).erase ((pV L).devRef cc9_scratch0)).erase ((pV L).devRef cc9_scratch1)).erase
              ((pV L).devRef cc9_scratch2)).erase ((pV L).devRef cc9_scratch3))
              fun b => iprop(∃ f, ((d, b) : Loc nD τ sig) ↦{fullShare} f))
      ∗ bigSep (((((ownCells (thr d L)).erase (c8 d L)).erase (c9 d L)).erase (c10 d L)).erase (c11 d L)) fun g => semVal g 0)

theorem body_pre (hO : ∀ g, O g none = 0) :
    iprop(levAts (K (F := F)).L (K (F := F)).lev ∗ emp ∗ goRes d L fx ∗ ownBufs (thr d L) ∗ ownSems0 (thr d L) ∗ owes (thr d L) O W)
      ⊢ runPre d L O W fx (restR (F := F) d L) := by
  rw [ownSems0_V, ownBufs_V]
  unfold goRes runPre restR
  iintro ⟨#Hlv, -, ⟨HX, HOut⟩, ⟨H4, H5, H6, H7, Hbufs⟩, ⟨Hs8, Hs9, Hs10, Hs11, Hsems⟩, HO⟩
  ihave Hmw := ((K (F := F)).mayWaits_none (thr := thr d L) hO) $$ Hlv
  isplitr; · iexact Hmw
  isplitl [HO]; · iexact HO
  isplitl [HX]; · iexact HX
  isplitl [HOut]; · iexact HOut
  isplitl [H4]; · iexact H4
  isplitl [H5]; · iexact H5
  isplitl [H6]; · iexact H6
  isplitl [H7]; · iexact H7
  isplitl [Hs8]; · iexact Hs8
  isplitl [Hs9]; · iexact Hs9
  isplitl [Hs10]; · iexact Hs10
  isplitl [Hs11]; · iexact Hs11
  isplitl [Hbufs]; · iexact Hbufs
  iexact Hsems

theorem body_post :
    runPost d L O W fx (restR (F := F) d L)
      ⊢ iprop(tdRes d L fx ∗ ownBufs (thr d L) ∗ ownSems0 (thr d L) ∗ ∃ W', ⌜∀ p ∈ W', p ∈ W ∨ p.2 = none⌝ ∗ owes (thr d L) O W') := by
  rw [ownSems0_V, ownBufs_V]
  unfold tdRes runPost restR
  iintro ⟨HX, HOut, H4, H5, H6, H7, Hs8, Hs9, Hs10, Hs11, HW, Hbufs, Hsems⟩
  isplitl [HX HOut]
  · isplitl [HX]; · iexact HX
    iexact HOut
  isplitl [H4 H5 H6 H7 Hbufs]
  · isplitl [H4]; · iexact H4
    isplitl [H5]; · iexact H5
    isplitl [H6]; · iexact H6
    isplitl [H7]; · iexact H7
    iexact Hbufs
  isplitl [Hs8 Hs9 Hs10 Hs11 Hsems]
  · isplitl [Hs8]; · iexact Hs8
    isplitl [Hs9]; · iexact Hs9
    isplitl [Hs10]; · iexact Hs10
    isplitl [Hs11]; · iexact Hs11
    iexact Hsems
  iexact HW

/-- The task in the launch theorem's shape: from what the call hands the tile and the subcore's scoped storage to
    what the tile hands back and the storage again. -/
theorem tile_body (hF : (K (F := F)).Facts) (hO : ∀ g, O g none = 0) :
    iprop(levAts (K (F := F)).L (K (F := F)).lev ∗ emp ∗ goRes d L fx ∗ scopedBufs (thr d L) ∗ scopedSems0 (thr d L) ∗ owes (thr d L) O W)
      ⊢ wp frame (wpE (defs₀ (F := F)) 𝒱₀ (thr d L) none) Set.univ
          (cc9_sc_group L xtW (Memref.isWhole_whole _) oW (Memref.isWhole_whole _) a4 (Memref.isWhole_whole _) a5 (Memref.isWhole_whole _)
            a6 (Memref.isWhole_whole _) a7 (Memref.isWhole_whole _) cc9_scratch4 cc9_scratch5 cc9_scratch6 cc9_scratch7)
          fun _ => iprop(tdRes d L fx ∗ scopedBufs (thr d L) ∗ scopedSems0 (thr d L)
            ∗ ∃ W', ⌜∀ p ∈ W', p ∈ W ∨ p.2 = none⌝ ∗ owes (thr d L) O W') := by
  rw [(K (F := F)).scopedBufs_V hF d (cV L) (jV L), SparseCore.Cfg.scopedSems0_V (Val := Elt F) d (cV L) (jV L)]
  exact (body_pre d L O W fx hO).trans ((tile_run d L O W fx (restR (F := F) d L)).trans (wp_mono frame _ _ fun _ => body_post d L O W fx))

end Tile

end Cert.Proof.TileK9

end
-- ==== Proof.TileBVal9.lean ====
/-
  What the staging buffers of one vector subcore hold while it copies a piece of 3200 consecutive elements of row 9 of
  the transposed argument into the flat result, read index by index. No program and no ownership here: only the contents.

  A transfer lands the piece in row 0 of an 8 × 3200 staging array (`InRow`: position (0, t) of that row holds element
  (0, pos + t) of the transposed argument, `pos` the piece's first column). A loop of 200 trips copies that row, 16 lanes
  per trip, into the first 3200 elements of a flat staging array of 25600: trip `j` reads the 1 × 16 window at columns
  [16 j, 16 j + 16) of row 0 and writes it, flattened, at elements [16 j, 16 j + 16). After `j` trips the first 16 j
  elements of the flat array are the first 16 j elements of the row (`Lanes`); a trip extends the prefix by 16
  (`lanes_step`: an element below 16 j is outside the window written and keeps its value, an element of the window reads
  the lane written there, which is the row's element at the same column). A second transfer writes the first 3200
  elements of the flat array to the piece of the result at the same `pos`; so every element of that piece of the result
  holds the element of row 9 of the transposed argument at its own position (`out_written`): the composite of the three
  index maps t ↦ (0, pos + t) ↦ (0, t) ↦ t ↦ pos + t is the identity on positions of the row.
-/
import proofs.«206869_g37898791420194_cont_8to1_b_558_20_alg».proof.Proof.TileB9Defs
import proofs.«206869_g37898791420194_cont_8to1_b_558_20_alg».proof.Proof.Spec
import Idealize.ShloMosaic.Lib.WritesUnit
import Idealize.ShloMosaic.Lib.ValueLayout

noncomputable section

namespace Cert.Proof.TileBVal9

open Cert.Proof.TileB9 Cert.Kernel Cert.Kernel.Gen
open Idealize.ShloMosaic Idealize.ShloMosaic.ValueIdx

variable {F : FTy → Type} [FloatOps F]
variable (d : Dev nD) (L : grid9.Coords)
variable (fx : Buf (Elt F) ((Memref.whole main_v0_scv : Memref sig .scVector .hbm S22x1600000 .f32).view.loc (thr d L)))

abbrev rowRect : Rect S8x3200 := Rect.unit (s := S8x3200) ![0, 0] S1x3200.size inb_S8x3200_S1x3200_0_0

/-- row 0 of the staging array is piece n of the argument row -/
def InRow (a : Memref sig .scVector .vmem S8x3200 .f32) (ga : Buf (Elt F) (a.view.loc (thr d L))) (n : ℕ) : Prop :=
  ∀ y : S1x3200.Idx, a.view.read (Elt F) ga (rowRect.emb y) = (inM L n).view.read (Elt F) fx y

theorem inRow_fetch (a : Memref sig .scVector .vmem S8x3200 .f32) (gold : Buf (Elt F) (a.view.loc (thr d L)))
    (w : S1x3200.Idx → Elt F .f32) (n : ℕ) (hw : ∀ y, w y = (inM L n).view.read (Elt F) fx y) :
    InRow d L fx a (a.view.writes (Elt F) gold [⟨rowRect, w⟩]) n :=
  fun y => (View.read_writes_cons_emb a.view gold rowRect w [] y).trans (hw y)

def Lanes (a : Memref sig .scVector .vmem S8x3200 .f32) (b : Memref sig .scVector .vmem S25600 .f32)
    (ga : Buf (Elt F) (a.view.loc (thr d L))) (gb : Buf (Elt F) (b.view.loc (thr d L))) (j : ℕ) : Prop :=
  ∀ (r : ℕ) (hr : r < 3200), r < 16 * j →
    b.view.read (Elt F) gb (ix1 (⟨r, by omega⟩ : Fin 25600)) = a.view.read (Elt F) ga (ix2 (0 : Fin 8) (⟨r, hr⟩ : Fin 3200))

theorem lanes_zero (a : Memref sig .scVector .vmem S8x3200 .f32) (b : Memref sig .scVector .vmem S25600 .f32)
    (ga : Buf (Elt F) (a.view.loc (thr d L))) (gb : Buf (Elt F) (b.view.loc (thr d L))) : Lanes d L a b ga gb 0 := by
  intro r hr h; omega

/-- The 1 × 16 window at column `c` of the staging array, read at lane `t`, is element `(0, c + t)`. -/
theorem idx_window {off : Fin 2 → ℕ} {c : ℕ} (h : off = ![0, c]) (p : ∀ a', off a' + S1x16.size a' ≤ S8x3200.size a')
    (t : Fin 16) (hr : c + t.val < 3200) :
    (Rect.unit (s := S8x3200) off S1x16.size p).toLoadRect.idx (ix2 (0 : Fin 1) t) = ix2 (0 : Fin 8) (⟨c + t.val, hr⟩ : Fin 3200) := by
  subst h
  funext a'; apply Fin.ext
  rw [LoadRect.idx_apply]
  match a' with
  | ⟨0, _⟩ => show 0 + 1 * 0 = 0; omega
  | ⟨1, _⟩ => show c + 1 * t.val = c + t.val; omega

/-- One trip of a lane-copy loop, the offsets given by their closed forms. -/
theorem lanes_step_core (a : Memref sig .scVector .vmem S8x3200 .f32) (b : Memref sig .scVector .vmem S25600 .f32)
    (ga : Buf (Elt F) (a.view.loc (thr d L))) (gb : Buf (Elt F) (b.view.loc (thr d L)))
    (t : ℕ) {off3 : Fin 2 → ℕ} {off4 : Fin 1 → ℕ} (h3 : off3 = ![0, 16 * t]) (h4 : off4 = ![16 * t])
    (p3 : ∀ a', off3 a' + S1x16.size a' ≤ S8x3200.size a') (p4 : ∀ a', off4 a' + S16.size a' ≤ S25600.size a')
    (h : Lanes d L a b ga gb t) :
    Lanes d L a b ga (b.view.writes (Elt F) gb [⟨Rect.unit (s := S25600) off4 S16.size p4,
      shapeCast S16 (a.view.readAt (Elt F) (Rect.unit (s := S8x3200) off3 S1x16.size p3).toLoadRect ga) shapeCasts_S1x16_S16⟩]) (t + 1) := by
  intro r hr hlt
  by_cases hlo : r < 16 * t
  · refine (View.read_writes_cons_unit_of_not_mem b.view gb p4 _ [] _ h4 (0 : Fin 1) (Or.inl ?_)).trans (h r hr hlo)
    show r < 16 * t
    exact hlo
  · have hx : r - 16 * t < 16 := by omega
    refine (View.read_writes_cons_unit_of_mem b.view gb p4 _ [] _ (ix1 (⟨r - 16 * t, hx⟩ : Fin 16)) h4 ?_).trans ?_
    · intro a'
      match a' with
      | ⟨0, _⟩ => show r = 16 * t + (r - 16 * t); omega
    · rw [shapeCast_1a_a_apply, View.readAt_apply, idx_window h3 p3 ⟨r - 16 * t, hx⟩ (by show 16 * t + (r - 16 * t) < 3200; omega)]
      congr 2
      apply Fin.ext
      show 16 * t + (r - 16 * t) = r
      omega

theorem lanes_step (a : Memref sig .scVector .vmem S8x3200 .f32) (b : Memref sig .scVector .vmem S25600 .f32)
    (ga : Buf (Elt F) (a.view.loc (thr d L))) (gb : Buf (Elt F) (b.view.loc (thr d L)))
    (j : Fin k9_t2_loop.trips) (p3 : ∀ a', (k9_off3 j) a' + S1x16.size a' ≤ S8x3200.size a')
    (p4 : ∀ a', (k9_off4 j) a' + S16.size a' ≤ S25600.size a') (h : Lanes d L a b ga gb j.val) :
    Lanes d L a b ga (b.view.writes (Elt F) gb [⟨Rect.unit (s := S25600) (k9_off4 j) S16.size p4,
      k9_pay1 (a.view.readAt (Elt F) (Rect.unit (s := S8x3200) (k9_off3 j) S1x16.size p3).toLoadRect ga)⟩]) (j.val + 1) :=
  lanes_step_core d L a b ga gb j.val (k9_off3_eq j) (k9_off4_eq j) p3 p4 h

theorem lanes_step' (a : Memref sig .scVector .vmem S8x3200 .f32) (b : Memref sig .scVector .vmem S25600 .f32)
    (ga : Buf (Elt F) (a.view.loc (thr d L))) (gb : Buf (Elt F) (b.view.loc (thr d L)))
    (j : Fin k9_t3_loop.trips) (p3 : ∀ a', (k9_off8 j) a' + S1x16.size a' ≤ S8x3200.size a')
    (p4 : ∀ a', (k9_off9 j) a' + S16.size a' ≤ S25600.size a') (h : Lanes d L a b ga gb j.val) :
    Lanes d L a b ga (b.view.writes (Elt F) gb [⟨Rect.unit (s := S25600) (k9_off9 j) S16.size p4,
      k9_pay2 (a.view.readAt (Elt F) (Rect.unit (s := S8x3200) (k9_off8 j) S1x16.size p3).toLoadRect ga)⟩]) (j.val + 1) :=
  lanes_step_core d L a b ga gb j.val (k9_off8_eq j) (k9_off9_eq j) p3 p4 h

/-- Position `y` of the write-out window of the flat staging array is its element `y 0`. -/
theorem stg_emb (y : S3200.Idx) (hy : (y 0).val < 25600) :
    (Rect.unit (s := S25600) ![0] S3200.size inb_S25600_S3200_0).emb y = ix1 (⟨(y 0).val, hy⟩ : Fin 25600) := by
  funext a'; apply Fin.ext
  match a' with
  | ⟨0, _⟩ => show 0 + 1 * (y 0).val = (y 0).val; omega

/-- Position `(0, t)` of row 0 of the staging array is its element `(0, t)`. -/
theorem row_emb (t : Fin 3200) : rowRect.emb (ix2 (0 : Fin 1) t) = ix2 (0 : Fin 8) t := by
  funext a'; apply Fin.ext
  match a' with
  | ⟨0, _⟩ => show 0 + 1 * 0 = 0; omega
  | ⟨1, _⟩ => show 0 + 1 * t.val = t.val; omega

/-- Position `(0, t)` of piece `n` of the argument row is element `(0, pos + t)` of the transposed argument;
    position `y` of piece `n` of the result is element `pos + y 0` of the result. -/
theorem in_emb (n : ℕ) (t : Fin 3200) (h : pos L n + t.val < 1600000) :
    (inM L n).view.emb (ix2 (0 : Fin 1) t) = ix2 (9 : Fin 22) (⟨pos L n + t.val, h⟩ : Fin 1600000) := by
  funext a'; apply Fin.ext
  match a' with
  | ⟨0, _⟩ => show 9 + 1 * 0 = 9; omega
  | ⟨1, _⟩ => show pos L n + 1 * t.val = pos L n + t.val; omega

theorem out_emb (n : ℕ) (y : S3200.Idx) (h : pos L n + (y 0).val < 1600000) :
    (outM L n).view.emb y = ix1 (⟨pos L n + (y 0).val, h⟩ : Fin 1600000) := by
  funext a'; apply Fin.ext
  match a' with
  | ⟨0, _⟩ => show pos L n + 1 * (y 0).val = pos L n + (y 0).val; omega

/-- Both lane-copy loops run 200 trips: 200 · 16 = 3200, the whole row. -/
theorem trips2 : k9_t2_loop.trips = 200 := by decide
theorem trips3 : k9_t3_loop.trips = 200 := by decide

/-- After all its trips a lane-copy loop has copied the whole row. -/
theorem lanes_all (a : Memref sig .scVector .vmem S8x3200 .f32) (b : Memref sig .scVector .vmem S25600 .f32)
    (ga : Buf (Elt F) (a.view.loc (thr d L))) (gb : Buf (Elt F) (b.view.loc (thr d L)))
    (h : Lanes d L a b ga gb k9_t2_loop.trips) : Lanes d L a b ga gb 200 := trips2 ▸ h
theorem lanes_all' (a : Memref sig .scVector .vmem S8x3200 .f32) (b : Memref sig .scVector .vmem S25600 .f32)
    (ga : Buf (Elt F) (a.view.loc (thr d L))) (gb : Buf (Elt F) (b.view.loc (thr d L)))
    (h : Lanes d L a b ga gb k9_t3_loop.trips) : Lanes d L a b ga gb 200 := trips3 ▸ h

/-- The write-out of a piece: the first 3200 elements of the flat staging array, which the 200 lane copies filled from
    row 0 of the staging array, which the fetch filled from piece `n` of row 9 of the transposed argument, land at
    piece `n` of the result, at the same positions of the row. -/
theorem out_written (a : Memref sig .scVector .vmem S8x3200 .f32) (b : Memref sig .scVector .vmem S25600 .f32) (n : ℕ)
    (ga : Buf (Elt F) (a.view.loc (thr d L))) (gb : Buf (Elt F) (b.view.loc (thr d L)))
    (f0 : Buf (Elt F) ((outM L n).view.loc (thr d L))) (w : S3200.Idx → Elt F .f32)
    (hw : ∀ y, w y = (stg b).view.read (Elt F) gb y) (hl : Lanes d L a b ga gb 200) (hr : InRow d L fx a ga n) (hv : valid L n) :
    ∀ i ∈ (outM L n).view.set, ((outM L n).view.writes (Elt F) f0 [⟨Rect.whole _, w⟩]) i = Cert.Spec.row 9 fx i := by
  intro i hi
  obtain ⟨y, -, rfl⟩ := Finset.mem_map.mp hi
  have hy : (y 0).val < 3200 := (y 0).isLt
  have hp : pos L n + (y 0).val < 1600000 := by unfold pos; omega
  have e1 : (outM L n).view.writes (Elt F) f0 [⟨Rect.whole _, w⟩] ((outM L n).view.emb y) = w y := by
    have h := View.read_writes_cons_emb (outM L n).view f0 (Rect.whole _) w [] y
    rw [Rect.emb_whole_apply] at h
    exact (cast_eq _ _).symm.trans ((View.read_apply _ _).symm.trans h)
  have e2 : (stg b).view.read (Elt F) gb y = b.view.read (Elt F) gb (ix1 (⟨(y 0).val, by omega⟩ : Fin 25600)) :=
    congrArg (b.view.read (Elt F) gb) (stg_emb y (by omega))
  have e3 : a.view.read (Elt F) ga (ix2 (0 : Fin 8) (⟨(y 0).val, hy⟩ : Fin 3200))
      = (inM L n).view.read (Elt F) fx (ix2 (0 : Fin 1) (⟨(y 0).val, hy⟩ : Fin 3200)) :=
    (congrArg (a.view.read (Elt F) ga) (row_emb ⟨(y 0).val, hy⟩).symm).trans (hr _)
  have e4 : (inM L n).view.read (Elt F) fx (ix2 (0 : Fin 1) (⟨(y 0).val, hy⟩ : Fin 3200))
      = fx (ix2 (9 : Fin 22) (⟨pos L n + (y 0).val, hp⟩ : Fin 1600000)) :=
    ((View.read_apply _ _).trans (cast_eq _ _)).trans (congrArg fx (in_emb L n ⟨(y 0).val, hy⟩ hp))
  have e5 : Cert.Spec.row 9 fx ((outM L n).view.emb y) = fx (ix2 (9 : Fin 22) (⟨pos L n + (y 0).val, hp⟩ : Fin 1600000)) :=
    (congrArg (Cert.Spec.row 9 fx) (out_emb L n y hp)).trans (Cert.Spec.row_apply 9 fx _)
  exact e1.trans ((hw y).trans (e2.trans ((hl _ hy (by omega)).trans (e3.trans (e4.trans e5.symm)))))

end Cert.Proof.TileBVal9

end
-- ==== Proof.TileB9.lean ====
/-
  One vector subcore's task of copy kernel 9 (counting from 0), run symbolically: the two fetch slots and two write-out slots
  between trips of the main loop (what each transfer in flight will hand back, and what the staging buffers hold), the
  invariant of the main loop and of the two lane-copy loops, and the task's run — from the tile's pieces of row 9 of
  the transposed argument and of the result to the same pieces with the result holding the row's elements.
-/
import proofs.«206869_g37898791420194_cont_8to1_b_558_20_alg».proof.Proof.TileB9Defs
import proofs.«206869_g37898791420194_cont_8to1_b_558_20_alg».proof.Proof.TileBVal9
noncomputable section

namespace Cert.Proof.TileB9

open Cert.Kernel Cert.Kernel.Gen Cert.Proof.TileBVal9
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 22) (Elt F) ℕ UU ℕ
local notation "xtW" => (Memref.whole Cert.Kernel.main_v0_scv : Memref Cert.Kernel.sig Kind.scVector Space.hbm Cert.Kernel.S22x1600000 EltTy.f32)
local notation "oW" => (Memref.whole Cert.Kernel.main_v10_scv : Memref Cert.Kernel.sig Kind.scVector Space.hbm Cert.Kernel.S1600000 EltTy.f32)
local notation "a4" => (Memref.whole Cert.Kernel.cc9_scratch0 : Memref Cert.Kernel.sig Kind.scVector Space.vmem Cert.Kernel.S8x3200 EltTy.f32)
local notation "a5" => (Memref.whole Cert.Kernel.cc9_scratch1 : Memref Cert.Kernel.sig Kind.scVector Space.vmem Cert.Kernel.S8x3200 EltTy.f32)
local notation "a6" => (Memref.whole Cert.Kernel.cc9_scratch2 : Memref Cert.Kernel.sig Kind.scVector Space.vmem Cert.Kernel.S25600 EltTy.f32)
local notation "a7" => (Memref.whole Cert.Kernel.cc9_scratch3 : Memref Cert.Kernel.sig Kind.scVector Space.vmem Cert.Kernel.S25600 EltTy.f32)

variable [FloatOps F]

section Tile

variable (d : Dev nD) (L : grid9.Coords)
variable (O : CellTallies nD τ sig (HIx 22)) (W : Waits sig (HIx 22))
variable (fx : Buf (Elt F) ((xtW).view.loc (thr d L)))

/-- Piece `n` of the result at its final contents. -/
abbrev oqPiece (n : ℕ) : sProp 𝕄 := (outM L n).view.loc (thr d L) ↦[(outM L n).view.set]{fullShare} (Cert.Spec.row 9 fx)
theorem oQ_pos {n : ℕ} (v : valid L n) : oQ d L fx n = oqPiece d L fx n := if_pos v
theorem oQ_neg {n : ℕ} (v : ¬ valid L n) : oQ d L fx n = iprop(emp) := if_neg v

/-- A fetch slot, remembering that the staging row it will hand back holds the piece. -/
def inSlotV (a : Memref sig .scVector .vmem S8x3200 .f32) (sm : DmaSem sig) (n : ℕ) : sProp 𝕄 :=
  if valid L n then
    iprop(∃ g, ⌜InRow d L fx a g n⌝ ∗ Transfers.Flight countersEmb (thr d L) (SemLoc.dma sm) (default : HIx 22) NN
      iprop((a.view.loc (thr d L) ↦{fullShare} g) ∗ xtPiece d L fx n))
  else iprop((∃ g, a.view.loc (thr d L) ↦{fullShare} g) ∗ semVal (thr d L, SemLoc.dma sm) 0)

/-- A write-out slot: the piece in flight will come back holding the row's elements. -/
def outSlotV (a : Memref sig .scVector .vmem S25600 .f32) (sm : DmaSem sig) (m : ℕ) : sProp 𝕄 :=
  if 2 ≤ m ∧ valid L (m - 2) then
    iprop(∃ g, Transfers.Flight countersEmb (thr d L) (SemLoc.dma sm) (default : HIx 22) NN
        iprop(oqPiece d L fx (m - 2) ∗ ((stg a).view.loc (thr d L) ↦[(stg a).view.set]{fullShare} g))
      ∗ (a.view.loc (thr d L) ↦[Finset.univ \ (stg a).view.set]{fullShare} g))
  else iprop((∃ g, a.view.loc (thr d L) ↦{fullShare} g) ∗ semVal (thr d L, SemLoc.dma sm) 0)

theorem inSlotV_pos {a : Memref sig .scVector .vmem S8x3200 .f32} {sm : DmaSem sig} {n : ℕ} (v : valid L n) :
    inSlotV d L fx a sm n = iprop(∃ g, ⌜InRow d L fx a g n⌝ ∗ Transfers.Flight countersEmb (thr d L) (SemLoc.dma sm) (default : HIx 22) NN
      iprop((a.view.loc (thr d L) ↦{fullShare} g) ∗ xtPiece d L fx n)) := by unfold inSlotV; rw [if_pos v]
theorem inSlotV_neg {a : Memref sig .scVector .vmem S8x3200 .f32} {sm : DmaSem sig} {n : ℕ} (v : ¬ valid L n) :
    inSlotV d L fx a sm n = iprop((∃ g, a.view.loc (thr d L) ↦{fullShare} g) ∗ semVal (thr d L, SemLoc.dma sm) 0) := by
  unfold inSlotV; rw [if_neg v]
theorem outSlotV_pos {a : Memref sig .scVector .vmem S25600 .f32} {sm : DmaSem sig} {m : ℕ} (h : 2 ≤ m ∧ valid L (m - 2)) :
    outSlotV d L fx a sm m = iprop(∃ g, Transfers.Flight countersEmb (thr d L) (SemLoc.dma sm) (default : HIx 22) NN
        iprop(oqPiece d L fx (m - 2) ∗ ((stg a).view.loc (thr d L) ↦[(stg a).view.set]{fullShare} g))
      ∗ (a.view.loc (thr d L) ↦[Finset.univ \ (stg a).view.set]{fullShare} g)) := by unfold outSlotV; rw [if_pos h]
theorem outSlotV_neg {a : Memref sig .scVector .vmem S25600 .f32} {sm : DmaSem sig} {m : ℕ} (h : ¬ (2 ≤ m ∧ valid L (m - 2))) :
    outSlotV d L fx a sm m = iprop((∃ g, a.view.loc (thr d L) ↦{fullShare} g) ∗ semVal (thr d L, SemLoc.dma sm) 0) := by
  unfold outSlotV; rw [if_neg h]

/-- A fetch just issued: the staging row will hold what the transfer reads, which is the piece. -/
theorem fl_inV {off : Fin 2 → ℕ} {n : ℕ} (h : off = ![9, pos L n]) (p : ∀ a, off a + S1x3200.size a ≤ S22x1600000.size a) (v : valid L n)
    (a : Memref sig .scVector .vmem S8x3200 .f32) (sm : DmaSem sig) :
    (iprop(∃ (gold : Buf (Elt F) (a.view.loc (thr d L))) (w : S1x3200.Idx → Elt F .f32),
        ⌜∀ y, w y = ((xtW).slice (Rect.unit (s := S22x1600000) off S1x3200.size p) (fun _ => rfl)).view.read (Elt F) fx y⌝
        ∗ Transfers.Flight countersEmb (thr d L) (SemLoc.dma sm) (default : HIx 22) NN
          iprop((a.view.loc (thr d L) ↦{fullShare} a.view.writes (Elt F) gold [⟨rowRect, w⟩])
            ∗ (((xtW).slice (Rect.unit (s := S22x1600000) off S1x3200.size p) (fun _ => rfl)).view.loc (thr d L)
                ↦[((xtW).slice (Rect.unit (s := S22x1600000) off S1x3200.size p) (fun _ => rfl)).view.set]{fullShare} fx))) : sProp 𝕄)
      ⊢ inSlotV d L fx a sm n := by
  subst h
  rw [inSlotV_pos d L fx v]
  iintro ⟨%gold, %w, %hw, H⟩
  iexists _
  isplitr
  · ipureintro; exact inRow_fetch d L fx a gold w n hw
  · iexact H

set_option maxHeartbeats 4000000 in
/-- A write-out just issued from a flat staging buffer whose first 3200 elements are the staging row, itself piece
    `n` of the argument row: the piece of the result will hold the row's elements. -/
theorem fl_outV {off : Fin 1 → ℕ} {n : ℕ} (h : off = ![pos L n]) (p : ∀ a, off a + S3200.size a ≤ S1600000.size a) (v : valid L n)
    (ar : Memref sig .scVector .vmem S8x3200 .f32) (a : Memref sig .scVector .vmem S25600 .f32) (sm : DmaSem sig)
    (f0 : Buf (Elt F) ((oW).view.loc (thr d L))) (ga : Buf (Elt F) (ar.view.loc (thr d L))) (gb : Buf (Elt F) (a.view.loc (thr d L)))
    (hl : Lanes d L ar a ga gb 200) (hr : InRow d L fx ar ga n) :
    (iprop(∃ (w : S3200.Idx → Elt F .f32),
        ⌜∀ y, w y = (stg a).view.read (Elt F) gb y⌝
        ∗ Transfers.Flight countersEmb (thr d L) (SemLoc.dma sm) (default : HIx 22) NN
          iprop((((oW).slice (Rect.unit (s := S1600000) off S3200.size p) (fun _ => rfl)).view.loc (thr d L)
                ↦[((oW).slice (Rect.unit (s := S1600000) off S3200.size p) (fun _ => rfl)).view.set]{fullShare}
                  (((oW).slice (Rect.unit (s := S1600000) off S3200.size p) (fun _ => rfl)).view.writes (Elt F) f0 [⟨Rect.whole _, w⟩]))
            ∗ ((stg a).view.loc (thr d L) ↦[(stg a).view.set]{fullShare} gb))
        ∗ (a.view.loc (thr d L) ↦[Finset.univ \ (stg a).view.set]{fullShare} gb)) : sProp 𝕄)
      ⊢ outSlotV d L fx a sm (n + 2) := by
  subst h
  rw [outSlotV_pos d L fx (m := n + 2) ⟨by omega, by simpa using v⟩]
  iintro ⟨%w, %hw, H, R⟩
  have hD : (iprop(((outM L n).view.loc (thr d L) ↦[(outM L n).view.set]{fullShare} ((outM L n).view.writes (Elt F) f0 [⟨Rect.whole _, w⟩]))
          ∗ ((stg a).view.loc (thr d L) ↦[(stg a).view.set]{fullShare} gb)) : sProp 𝕄)
      ⊢ iprop(oqPiece d L fx (n + 2 - 2) ∗ ((stg a).view.loc (thr d L) ↦[(stg a).view.set]{fullShare} gb)) := by
    rw [Nat.add_sub_cancel]
    have e : (((outM L n).view.loc (thr d L) ↦[(outM L n).view.set]{fullShare} ((outM L n).view.writes (Elt F) f0 [⟨Rect.whole _, w⟩])) : sProp 𝕄)
        = oqPiece d L fx n := pointsTo_congr (out_written d L fx ar a n ga gb f0 w hw hl hr v)
    iintro ⟨H1, H2⟩
    isplitl [H1]
    · iapply (Entails.of_eq e); iexact H1
    · iexact H2
  iexists gb
  isplitl [H]
  · iapply (Transfers.Flight_mono countersEmb (thr d L) hD); iexact H
  · iexact R

/-- The result pieces outside the slots before trip `t`: those already written hold the row, the others some contents. -/
def oMix (t n : ℕ) : sProp 𝕄 := if n + 2 < 2 * t then oQ d L fx n else oP (F := F) d L n
theorem oMix_lt {t n : ℕ} (h : n + 2 < 2 * t) : oMix d L fx t n = oQ d L fx n := if_pos h
theorem oMix_ge {t n : ℕ} (h : ¬ n + 2 < 2 * t) : oMix d L fx t n = oP (F := F) d L n := if_neg h
theorem oMix_core (k : ℕ) : bigSep (oCore k) (oMix d L fx k) = bigSep (oCore k) (oMix d L fx (k + 1)) :=
  bigSep_congr fun n hn => by
    have hn' : n + 2 ≠ 2 * k ∧ n + 2 ≠ 2 * k + 1 ∧ n ≠ 2 * k ∧ n ≠ 2 * k + 1 := by
      simp only [oCore, Finset.mem_filter, Finset.mem_range] at hn; exact hn.2
    by_cases h : n + 2 < 2 * k
    · rw [oMix_lt d L fx h, oMix_lt d L fx (by omega)]
    · rw [oMix_ge d L fx h, oMix_ge d L fx (by omega)]
theorem oMix_zero : bigSep (oSet 0) (oMix d L fx 0) = bigSep (Finset.range 18) (oP (F := F) d L) := by
  rw [oSet_zero]; exact bigSep_congr fun n _ => oMix_ge d L fx (by omega)
theorem oMix_end : bigSep (oSet 8) (oMix d L fx 8) = bigSep (oSet 8) (oQ d L fx) :=
  bigSep_congr fun n hn => by
    have hn' : n < 18 ∧ n + 2 ≠ 16 ∧ n + 2 ≠ 17 := by simpa only [oSet, Finset.mem_filter, Finset.mem_range] using hn
    by_cases h : n + 2 < 2 * 8
    · exact oMix_lt d L fx h
    · rw [oMix_ge d L fx h, oP_neg (F := F) d L (by unfold valid; omega), oQ_neg d L fx (by unfold valid; omega)]

/-- The lane-copy loops: before trip `j` the first 16·j elements of the flat staging buffer are the staging row's. -/
def laneV0 (g4 : Buf (Elt F) ((a4).view.loc (thr d L))) (j : ℕ) (_ : PUnit) : sProp 𝕄 :=
  iprop(((a4).view.loc (thr d L) ↦{fullShare} g4) ∗ (∃ g, ((a6).view.loc (thr d L) ↦{fullShare} g) ∗ ⌜Lanes d L a4 a6 g4 g j⌝))
def laneV1 (g5 : Buf (Elt F) ((a5).view.loc (thr d L))) (j : ℕ) (_ : PUnit) : sProp 𝕄 :=
  iprop(((a5).view.loc (thr d L) ↦{fullShare} g5) ∗ (∃ g, ((a7).view.loc (thr d L) ↦{fullShare} g) ∗ ⌜Lanes d L a5 a7 g5 g j⌝))

def invV (t : ℕ) (_ : PUnit) : sProp 𝕄 :=
  iprop(Transfers.MayWaits (thr d L) (none : HIx 22) O
    ∗ (∃ W', ⌜∀ p ∈ W', p ∈ W ∨ p.2 = none⌝ ∗ owes (thr d L) O W')
    ∗ bigSep (xSet t) (xP d L fx) ∗ bigSep (oSet t) (oMix d L fx t)
    ∗ inSlotV d L fx a4 cc9_scratch4.sem (2 * t) ∗ outSlotV d L fx a6 cc9_scratch6.sem (2 * t)
    ∗ inSlotV d L fx a5 cc9_scratch5.sem (2 * t + 1) ∗ outSlotV d L fx a7 cc9_scratch7.sem (2 * t + 1))

/-- After the last trip nothing of the argument row is in a slot: the tile holds all its pieces. -/
theorem xRange_end : bigSep (xSet 8) (xP d L fx) ⊢ bigSep (Finset.range 18) (xP d L fx) := by
  rw [two_out (s := Finset.range 18) (a := 16) (b := 17) (by decide) (by decide) (by decide),
    show ((Finset.range 18).erase 16).erase 17 = xSet 8 by decide]
  iintro H
  isplitr; · iapply (Entails.of_eq (xP_neg d L fx (n := 16) (by unfold valid; omega)).symm); iempintro
  isplitr; · iapply (Entails.of_eq (xP_neg d L fx (n := 17) (by unfold valid; omega)).symm); iempintro
  iexact H
omit [FloatOps F] in
theorem oRange_end (Φ : ℕ → sProp 𝕄) : bigSep (Finset.range 18) Φ = iprop(Φ 14 ∗ Φ 15 ∗ bigSep (oSet 8) Φ) := by
  rw [two_out (s := Finset.range 18) (a := 14) (b := 15) (by decide) (by decide) (by decide),
    show ((Finset.range 18).erase 14).erase 15 = oSet 8 by decide]

/-- What the run starts from and ends with, beside an untouched rest `R`. -/
def runPre (R : sProp 𝕄) : sProp 𝕄 :=
    iprop(Transfers.MayWaits (thr d L) (none : HIx 22) O ∗ owes (thr d L) O W
        ∗ bigSep (Finset.range 18) (xP d L fx) ∗ bigSep (Finset.range 18) (oP (F := F) d L)
        ∗ (∃ g, (a4).view.loc (thr d L) ↦{fullShare} g) ∗ (∃ g, (a5).view.loc (thr d L) ↦{fullShare} g)
        ∗ (∃ g, (a6).view.loc (thr d L) ↦{fullShare} g) ∗ (∃ g, (a7).view.loc (thr d L) ↦{fullShare} g)
        ∗ semVal (thr d L, SemLoc.dma cc9_scratch4.sem) 0 ∗ semVal (thr d L, SemLoc.dma cc9_scratch5.sem) 0
        ∗ semVal (thr d L, SemLoc.dma cc9_scratch6.sem) 0 ∗ semVal (thr d L, SemLoc.dma cc9_scratch7.sem) 0 ∗ R)
def runPost (R : sProp 𝕄) : sProp 𝕄 :=
    iprop(bigSep (Finset.range 18) (xP d L fx) ∗ bigSep (Finset.range 18) (oQ d L fx)
            ∗ (∃ g, (a4).view.loc (thr d L) ↦{fullShare} g) ∗ (∃ g, (a5).view.loc (thr d L) ↦{fullShare} g)
            ∗ (∃ g, (a6).view.loc (thr d L) ↦{fullShare} g) ∗ (∃ g, (a7).view.loc (thr d L) ↦{fullShare} g)
            ∗ semVal (thr d L, SemLoc.dma cc9_scratch4.sem) 0 ∗ semVal (thr d L, SemLoc.dma cc9_scratch5.sem) 0
            ∗ semVal (thr d L, SemLoc.dma cc9_scratch6.sem) 0 ∗ semVal (thr d L, SemLoc.dma cc9_scratch7.sem) 0
            ∗ (∃ W', ⌜∀ p ∈ W', p ∈ W ∨ p.2 = none⌝ ∗ owes (thr d L) O W') ∗ R)

set_option maxHeartbeats 16000000 in
/-- The task's run: from its pieces of the argument row and of the result, the four staging buffers and the four
    semaphores at zero, to the same with every piece of the result holding the row's elements. -/
theorem tile_run (R : sProp 𝕄) :
    runPre d L O W fx R
      ⊢ wp frame (wpE (defs₀ (F := F)) 𝒱₀ (thr d L) none) Set.univ
          (cc9_sc_group L xtW (Memref.isWhole_whole _) oW (Memref.isWhole_whole _) a4 (Memref.isWhole_whole _) a5 (Memref.isWhole_whole _)
            a6 (Memref.isWhole_whole _) a7 (Memref.isWhole_whole _) cc9_scratch4 cc9_scratch5 cc9_scratch6 cc9_scratch7)
          fun _ => runPost d L O W fx R := by
  unfold runPre runPost
  have v0 : valid L 0 := Or.inl (by omega)
  have v1 : valid L 1 := Or.inl (by omega)
  have k9_h7 : k9_cond7 L = 1#1 := cond7_iff L
  iintro ⟨#Hmw, HO, HX, HOut, ⟨%g4, H4⟩, ⟨%g5, H5⟩, ⟨%g6, H6⟩, ⟨%g7, H7⟩, Hs8, Hs9, Hs10, Hs11, HR⟩
  ihave HX := (Entails.of_eq (xRange_split d L fx v0 v1)) $$ HX
  icases HX with ⟨X0, X1, HX⟩
  ihave X0 := (Entails.of_eq (in_congr d L (off_in0 L v0).symm (in_inb L _) (k9_off1_inb L 0) fx)) $$ X0
  ihave X1 := (Entails.of_eq (in_congr d L (off_in1 L v1).symm (in_inb L _) (k9_off1_inb L 1) fx)) $$ X1
  sl_unfold [cc9_sc_group]
  sl_exec
  ihave S8 := (fl_inV d L fx (off_in0 L v0) (k9_off1_inb L 0) v0 a4 cc9_scratch4.sem) $$ [Hs8]
  · iexists _, _
    isplitr
    rotate_left
    · iexact Hs8
    ipureintro; intro y; rfl
  ihave S9 := (fl_inV d L fx (off_in1 L v1) (k9_off1_inb L 1) v1 a5 cc9_scratch5.sem) $$ [Hs9]
  · iexists _, _
    isplitr
    rotate_left
    · iexact Hs9
    ipureintro; intro y; rfl
  sl_for (invV d L O W fx) $$ [HO HX HOut S8 S9 H6 H7 Hs10 Hs11]
  case region =>
    intro (k : Fin k9_t1_loop.trips) acc
    have hk : k.val < 8 := Nat.lt_of_lt_of_eq k.isLt trips1
    unfold invV
    iintro ⟨#Hmw, ⟨%W', %hW', HO⟩, HX, HOut, S8, S10, S9, S11⟩
    by_cases hk1 : 1 ≤ k.val
    · by_cases v3 : valid L (2 * k.val + 3)
      · -- the generic trip: both drains, both pieces worked, both next fetches issued
        have hk6 : k.val ≤ 6 := by unfold valid at v3; omega
        have k9_h1 : k9_cond1 k = 1#1 := (cond1_iff k).mpr (by omega)
        have k9_h2 : k9_cond2 L k = 1#1 := cond2_iff L k
        have k9_h3 : k9_cond3 L k = 1#1 := (cond3_iff L k).mpr (by omega)
        have k9_h4 : k9_cond4 k = 1#1 := (cond4_iff k).mpr (by omega)
        have k9_h5 : k9_cond5 L k = 1#1 := (cond5_iff L k).mpr (by first | (unfold valid big at *; omega) | (unfold big at *; omega) | omega)
        have k9_h6 : k9_cond6 L k = 1#1 := (cond6_iff L k).mpr (by first | (unfold valid big at *; omega) | (unfold big at *; omega) | omega)
        have v0 : valid L (2 * k.val) := by unfold valid big at *; omega
        have v1 : valid L (2 * k.val + 1) := by unfold valid big at *; omega
        have v2 : valid L (2 * k.val + 2) := by unfold valid big at *; omega
        have v3' : valid L (2 * k.val + 3) := by unfold valid big at *; omega
        have hm0 : 2 ≤ 2 * k.val ∧ valid L (2 * k.val - 2) := ⟨by omega, by unfold valid big at *; omega⟩
        have hm1 : 2 ≤ 2 * k.val + 1 ∧ valid L (2 * k.val + 1 - 2) := ⟨by omega, by unfold valid big at *; omega⟩
        ihave S8 := (Entails.of_eq (inSlotV_pos d L fx v0)) $$ S8
        icases S8 with ⟨%g4, %hin4, F8⟩
        ihave S9 := (Entails.of_eq (inSlotV_pos d L fx v1)) $$ S9
        icases S9 with ⟨%g5, %hin5, F9⟩
        ihave S10 := (Entails.of_eq (outSlotV_pos d L fx hm0)) $$ S10
        icases S10 with ⟨%g6, F10, R6⟩
        ihave S11 := (Entails.of_eq (outSlotV_pos d L fx hm1)) $$ S11
        icases S11 with ⟨%g7, F11, R7⟩
        ihave HX := (Entails.of_eq (xSet_out (xP d L fx) k.val hk)) $$ HX
        icases HX with ⟨X2, X3, HX⟩
        ihave X2 := (Entails.of_eq (xP_pos d L fx v2)) $$ X2
        ihave X2 := (Entails.of_eq (in_congr d L (off_6 L k v2).symm (in_inb L _) (k9_off6_inb L k k9_h3) fx)) $$ X2
        ihave X3 := (Entails.of_eq (xP_pos d L fx v3')) $$ X3
        ihave X3 := (Entails.of_eq (in_congr d L (off_11 L k v3').symm (in_inb L _) (k9_off11_inb L k k9_h6) fx)) $$ X3
        ihave HOut := (Entails.of_eq (oSet_out (oMix d L fx k.val) k.val hk)) $$ HOut
        icases HOut with ⟨Y0, Y1, HOut⟩
        ihave Y0 := (Entails.of_eq ((oMix_ge d L fx (t := k.val) (n := 2 * k.val) (by omega)).trans (oP_pos (F := F) d L v0))) $$ Y0
        icases Y0 with ⟨%f0, Y0⟩
        ihave Y0 := (Entails.of_eq (out_congr d L (off_5 L k v0).symm (out_inb L _) (k9_off5_inb L k k9_h2) f0)) $$ Y0
        ihave Y1 := (Entails.of_eq ((oMix_ge d L fx (t := k.val) (n := 2 * k.val + 1) (by omega)).trans (oP_pos (F := F) d L v1))) $$ Y1
        icases Y1 with ⟨%f1, Y1⟩
        ihave Y1 := (Entails.of_eq (out_congr d L (off_10 L k v1).symm (out_inb L _) (k9_off10_inb L k k9_h5) f1)) $$ Y1
        sl_exec
        sl_for (laneV0 d L g4) $$ [F8_dst R6]
        case region =>
          intro (j : Fin k9_t2_loop.trips) _
          unfold laneV0
          iintro ⟨HA, %g, HB, %hl⟩
          sl_exec
          sl_step
          isplitl [HA]; · iexact HA
          iexists _; isplitl [HB]; · iexact HB
          ipureintro; exact lanes_step d L a4 a6 g4 g j _ _ hl
        · unfold laneV0
          isplitl [F8_dst]; · iexact F8_dst
          iexists _; isplitl [R6]; · iexact R6
          ipureintro; exact lanes_zero d L a4 a6 g4 _
        iintro %_ HI
        unfold laneV0
        icases HI with ⟨H4, %g6', H6, %hl6⟩
        have hl6 : Lanes d L a4 a6 g4 g6' 200 := Eq.mp (congrArg (Lanes d L a4 a6 g4 g6') trips2) hl6
        sl_exec
        sl_for (laneV1 d L g5) $$ [F9_dst R7]
        case region =>
          intro (j : Fin k9_t3_loop.trips) _
          unfold laneV1
          iintro ⟨HA, %g, HB, %hl⟩
          sl_exec
          sl_step
          isplitl [HA]; · iexact HA
          iexists _; isplitl [HB]; · iexact HB
          ipureintro; exact lanes_step' d L a5 a7 g5 g j _ _ hl
        · unfold laneV1
          isplitl [F9_dst]; · iexact F9_dst
          iexists _; isplitl [R7]; · iexact R7
          ipureintro; exact lanes_zero d L a5 a7 g5 _
        iintro %_ HI
        unfold laneV1
        icases HI with ⟨H5, %g7', H7, %hl7⟩
        have hl7 : Lanes d L a5 a7 g5 g7' 200 := Eq.mp (congrArg (Lanes d L a5 a7 g5 g7') trips3) hl7
        sl_exec
        sl_step
        isplitr; · iexact Hmw
        isplitl [HO]
        · iexists _; isplitr
          rotate_left
          · iexact HO
          ipureintro; intro p hp
          rcases Finset.mem_insert.mp hp with rfl | hp
          · exact .inr rfl
          rcases Finset.mem_insert.mp hp with rfl | hp
          · exact .inr rfl
          rcases Finset.mem_insert.mp hp with rfl | hp
          · exact .inr rfl
          rcases Finset.mem_insert.mp hp with rfl | hp
          · exact .inr rfl
          exact hW' p hp
        isplitl [HX F8_src F9_src]
        · iapply (Entails.of_eq (xSet_in (xP d L fx) k.val hk).symm)
          isplitl [F8_src]; · iapply (Entails.of_eq (xP_pos d L fx v0).symm); iexact F8_src
          isplitl [F9_src]; · iapply (Entails.of_eq (xP_pos d L fx v1).symm); iexact F9_src
          iexact HX
        isplitl [HOut F10_dst F11_dst]
        · iapply (Entails.of_eq (oSet_in (oMix d L fx (k.val + 1)) k.val hk (by omega)).symm)
          isplitl [F10_dst]; · iapply (Entails.of_eq ((oMix_lt d L fx (t := k.val + 1) (n := 2 * k.val - 2) (by omega)).trans (oQ_pos d L fx hm0.2)).symm); iexact F10_dst
          isplitl [F11_dst]
          · iapply (Entails.of_eq ((oMix_lt d L fx (t := k.val + 1) (n := 2 * k.val - 1) (by omega)).trans (oQ_pos d L fx (n := 2 * k.val - 1) (by have := hm1.2; rwa [show 2 * k.val + 1 - 2 = 2 * k.val - 1 by omega] at this))).symm)
            iapply (Entails.of_eq (congrArg (oqPiece d L fx) (show 2 * k.val + 1 - 2 = 2 * k.val - 1 by omega))); iexact F11_dst
          iapply (Entails.of_eq (oMix_core d L fx k.val)); iexact HOut
        isplitl [F8]
        · iapply (Entails.of_eq (congrArg (inSlotV d L fx a4 cc9_scratch4.sem) (show 2 * k.val + 2 = 2 * (k.val + 1) by ring)))
          iapply (fl_inV d L fx (off_6 L k v2) (k9_off6_inb L k k9_h3) v2 a4 cc9_scratch4.sem); iexists _, _
          isplitr
          rotate_left
          · iexact F8
          ipureintro; intro y; rfl
        isplitl [F10 H6]
        · iapply (Entails.of_eq (congrArg (outSlotV d L fx a6 cc9_scratch6.sem) (show 2 * k.val + 2 = 2 * (k.val + 1) by ring)))
          iapply (fl_outV d L fx (off_5 L k v0) (k9_off5_inb L k k9_h2) v0 a4 a6 cc9_scratch6.sem f0 g4 g6' hl6 hin4); iexists _
          isplitr
          rotate_left
          · isplitl [F10]; · iexact F10
            iexact H6
          ipureintro; intro y; rfl
        isplitl [F9]
        · iapply (Entails.of_eq (congrArg (inSlotV d L fx a5 cc9_scratch5.sem) (show 2 * k.val + 3 = 2 * (k.val + 1) + 1 by ring)))
          iapply (fl_inV d L fx (off_11 L k v3') (k9_off11_inb L k k9_h6) v3' a5 cc9_scratch5.sem); iexists _, _
          isplitr
          rotate_left
          · iexact F9
          ipureintro; intro y; rfl
        · iapply (Entails.of_eq (congrArg (outSlotV d L fx a7 cc9_scratch7.sem) (show 2 * k.val + 1 + 2 = 2 * (k.val + 1) + 1 by ring)))
          iapply (fl_outV d L fx (off_10 L k v1) (k9_off10_inb L k k9_h5) v1 a5 a7 cc9_scratch7.sem f1 g5 g7' hl7 hin5); iexists _
          isplitr
          rotate_left
          · isplitl [F11]; · iexact F11
            iexact H7
          ipureintro; intro y; rfl
      · by_cases h6 : k.val = 6
        · have hb : ¬ big L := fun hb => v3 (Or.inr ⟨by omega, hb⟩)
          -- trip 6 of a tile with fifteen pieces: no sixteenth piece to fetch
          have k9_h1 : k9_cond1 k = 1#1 := (cond1_iff k).mpr (by omega)
          have k9_h2 : k9_cond2 L k = 1#1 := cond2_iff L k
          have k9_h3 : k9_cond3 L k = 1#1 := (cond3_iff L k).mpr (by omega)
          have k9_h4 : k9_cond4 k = 1#1 := (cond4_iff k).mpr (by omega)
          have k9_h5 : k9_cond5 L k = 1#1 := (cond5_iff L k).mpr (by first | (unfold valid big at *; omega) | (unfold big at *; omega) | omega)
          have k9_h6 : ¬ k9_cond6 L k = 1#1 := fun h => absurd ((cond6_iff L k).mp h) (by first | (unfold valid big at *; omega) | (unfold big at *; omega) | omega)
          have v0 : valid L (2 * k.val) := by unfold valid big at *; omega
          have v1 : valid L (2 * k.val + 1) := by unfold valid big at *; omega
          have v2 : valid L (2 * k.val + 2) := by unfold valid big at *; omega
          have v3' : ¬ valid L (2 * k.val + 3) := by unfold valid big at *; omega
          have hm0 : 2 ≤ 2 * k.val ∧ valid L (2 * k.val - 2) := ⟨by omega, by unfold valid big at *; omega⟩
          have hm1 : 2 ≤ 2 * k.val + 1 ∧ valid L (2 * k.val + 1 - 2) := ⟨by omega, by unfold valid big at *; omega⟩
          ihave S8 := (Entails.of_eq (inSlotV_pos d L fx v0)) $$ S8
          icases S8 with ⟨%g4, %hin4, F8⟩
          ihave S9 := (Entails.of_eq (inSlotV_pos d L fx v1)) $$ S9
          icases S9 with ⟨%g5, %hin5, F9⟩
          ihave S10 := (Entails.of_eq (outSlotV_pos d L fx hm0)) $$ S10
          icases S10 with ⟨%g6, F10, R6⟩
          ihave S11 := (Entails.of_eq (outSlotV_pos d L fx hm1)) $$ S11
          icases S11 with ⟨%g7, F11, R7⟩
          ihave HX := (Entails.of_eq (xSet_out (xP d L fx) k.val hk)) $$ HX
          icases HX with ⟨X2, -, HX⟩
          ihave X2 := (Entails.of_eq (xP_pos d L fx v2)) $$ X2
          ihave X2 := (Entails.of_eq (in_congr d L (off_6 L k v2).symm (in_inb L _) (k9_off6_inb L k k9_h3) fx)) $$ X2
          ihave HOut := (Entails.of_eq (oSet_out (oMix d L fx k.val) k.val hk)) $$ HOut
          icases HOut with ⟨Y0, Y1, HOut⟩
          ihave Y0 := (Entails.of_eq ((oMix_ge d L fx (t := k.val) (n := 2 * k.val) (by omega)).trans (oP_pos (F := F) d L v0))) $$ Y0
          icases Y0 with ⟨%f0, Y0⟩
          ihave Y0 := (Entails.of_eq (out_congr d L (off_5 L k v0).symm (out_inb L _) (k9_off5_inb L k k9_h2) f0)) $$ Y0
          ihave Y1 := (Entails.of_eq ((oMix_ge d L fx (t := k.val) (n := 2 * k.val + 1) (by omega)).trans (oP_pos (F := F) d L v1))) $$ Y1
          icases Y1 with ⟨%f1, Y1⟩
          ihave Y1 := (Entails.of_eq (out_congr d L (off_10 L k v1).symm (out_inb L _) (k9_off10_inb L k k9_h5) f1)) $$ Y1
          sl_exec
          sl_for (laneV0 d L g4) $$ [F8_dst R6]
          case region =>
            intro (j : Fin k9_t2_loop.trips) _
            unfold laneV0
            iintro ⟨HA, %g, HB, %hl⟩
            sl_exec
            sl_step
            isplitl [HA]; · iexact HA
            iexists _; isplitl [HB]; · iexact HB
            ipureintro; exact lanes_step d L a4 a6 g4 g j _ _ hl
          · unfold laneV0
            isplitl [F8_dst]; · iexact F8_dst
            iexists _; isplitl [R6]; · iexact R6
            ipureintro; exact lanes_zero d L a4 a6 g4 _
          iintro %_ HI
          unfold laneV0
          icases HI with ⟨H4, %g6', H6, %hl6⟩
          have hl6 : Lanes d L a4 a6 g4 g6' 200 := Eq.mp (congrArg (Lanes d L a4 a6 g4 g6') trips2) hl6
          sl_exec
          sl_for (laneV1 d L g5) $$ [F9_dst R7]
          case region =>
            intro (j : Fin k9_t3_loop.trips) _
            unfold laneV1
            iintro ⟨HA, %g, HB, %hl⟩
            sl_exec
            sl_step
            isplitl [HA]; · iexact HA
            iexists _; isplitl [HB]; · iexact HB
            ipureintro; exact lanes_step' d L a5 a7 g5 g j _ _ hl
          · unfold laneV1
            isplitl [F9_dst]; · iexact F9_dst
            iexists _; isplitl [R7]; · iexact R7
            ipureintro; exact lanes_zero d L a5 a7 g5 _
          iintro %_ HI
          unfold laneV1
          icases HI with ⟨H5, %g7', H7, %hl7⟩
          have hl7 : Lanes d L a5 a7 g5 g7' 200 := Eq.mp (congrArg (Lanes d L a5 a7 g5 g7') trips3) hl7
          sl_exec
          sl_step
          isplitr; · iexact Hmw
          isplitl [HO]
          · iexists _; isplitr
            rotate_left
            · iexact HO
            ipureintro; intro p hp
            rcases Finset.mem_insert.mp hp with rfl | hp
            · exact .inr rfl
            rcases Finset.mem_insert.mp hp with rfl | hp
            · exact .inr rfl
            rcases Finset.mem_insert.mp hp with rfl | hp
            · exact .inr rfl
            rcases Finset.mem_insert.mp hp with rfl | hp
            · exact .inr rfl
            exact hW' p hp
          isplitl [HX F8_src F9_src]
          · iapply (Entails.of_eq (xSet_in (xP d L fx) k.val hk).symm)
            isplitl [F8_src]; · iapply (Entails.of_eq (xP_pos d L fx v0).symm); iexact F8_src
            isplitl [F9_src]; · iapply (Entails.of_eq (xP_pos d L fx v1).symm); iexact F9_src
            iexact HX
          isplitl [HOut F10_dst F11_dst]
          · iapply (Entails.of_eq (oSet_in (oMix d L fx (k.val + 1)) k.val hk (by omega)).symm)
            isplitl [F10_dst]; · iapply (Entails.of_eq ((oMix_lt d L fx (t := k.val + 1) (n := 2 * k.val - 2) (by omega)).trans (oQ_pos d L fx hm0.2)).symm); iexact F10_dst
            isplitl [F11_dst]
            · iapply (Entails.of_eq ((oMix_lt d L fx (t := k.val + 1) (n := 2 * k.val - 1) (by omega)).trans (oQ_pos d L fx (n := 2 * k.val - 1) (by have := hm1.2; rwa [show 2 * k.val + 1 - 2 = 2 * k.val - 1 by omega] at this))).symm)
              iapply (Entails.of_eq (congrArg (oqPiece d L fx) (show 2 * k.val + 1 - 2 = 2 * k.val - 1 by omega))); iexact F11_dst
            iapply (Entails.of_eq (oMix_core d L fx k.val)); iexact HOut
          isplitl [F8]
          · iapply (Entails.of_eq (congrArg (inSlotV d L fx a4 cc9_scratch4.sem) (show 2 * k.val + 2 = 2 * (k.val + 1) by ring)))
            iapply (fl_inV d L fx (off_6 L k v2) (k9_off6_inb L k k9_h3) v2 a4 cc9_scratch4.sem); iexists _, _
            isplitr
            rotate_left
            · iexact F8
            ipureintro; intro y; rfl
          isplitl [F10 H6]
          · iapply (Entails.of_eq (congrArg (outSlotV d L fx a6 cc9_scratch6.sem) (show 2 * k.val + 2 = 2 * (k.val + 1) by ring)))
            iapply (fl_outV d L fx (off_5 L k v0) (k9_off5_inb L k k9_h2) v0 a4 a6 cc9_scratch6.sem f0 g4 g6' hl6 hin4); iexists _
            isplitr
            rotate_left
            · isplitl [F10]; · iexact F10
              iexact H6
            ipureintro; intro y; rfl
          isplitl [H5 F9]
          · iapply (Entails.of_eq (congrArg (inSlotV d L fx a5 cc9_scratch5.sem) (show 2 * k.val + 3 = 2 * (k.val + 1) + 1 by ring)))
            iapply (Entails.of_eq (inSlotV_neg d L fx v3').symm)
            isplitl [H5]; · iexists _; iexact H5
            iexact F9
          · iapply (Entails.of_eq (congrArg (outSlotV d L fx a7 cc9_scratch7.sem) (show 2 * k.val + 1 + 2 = 2 * (k.val + 1) + 1 by ring)))
            iapply (fl_outV d L fx (off_10 L k v1) (k9_off10_inb L k k9_h5) v1 a5 a7 cc9_scratch7.sem f1 g5 g7' hl7 hin5); iexists _
            isplitr
            rotate_left
            · isplitl [F11]; · iexact F11
              iexact H7
            ipureintro; intro y; rfl
        · have h7 : k.val = 7 := by unfold valid at v3; omega
          by_cases hb : big L
          · -- the last trip of a tile with sixteen pieces: nothing more to fetch
            have k9_h1 : k9_cond1 k = 1#1 := (cond1_iff k).mpr (by omega)
            have k9_h2 : k9_cond2 L k = 1#1 := cond2_iff L k
            have k9_h3 : ¬ k9_cond3 L k = 1#1 := fun h => absurd ((cond3_iff L k).mp h) (by omega)
            have k9_h4 : k9_cond4 k = 1#1 := (cond4_iff k).mpr (by omega)
            have k9_h5 : k9_cond5 L k = 1#1 := (cond5_iff L k).mpr (by first | (unfold valid big at *; omega) | (unfold big at *; omega) | omega)
            have k9_h6 : ¬ k9_cond6 L k = 1#1 := fun h => absurd ((cond6_iff L k).mp h) (by first | (unfold valid big at *; omega) | (unfold big at *; omega) | omega)
            have v0 : valid L (2 * k.val) := by unfold valid big at *; omega
            have v1 : valid L (2 * k.val + 1) := by unfold valid big at *; omega
            have v2 : ¬ valid L (2 * k.val + 2) := by unfold valid big at *; omega
            have v3' : ¬ valid L (2 * k.val + 3) := by unfold valid big at *; omega
            have hm0 : 2 ≤ 2 * k.val ∧ valid L (2 * k.val - 2) := ⟨by omega, by unfold valid big at *; omega⟩
            have hm1 : 2 ≤ 2 * k.val + 1 ∧ valid L (2 * k.val + 1 - 2) := ⟨by omega, by unfold valid big at *; omega⟩
            ihave S8 := (Entails.of_eq (inSlotV_pos d L fx v0)) $$ S8
            icases S8 with ⟨%g4, %hin4, F8⟩
            ihave S9 := (Entails.of_eq (inSlotV_pos d L fx v1)) $$ S9
            icases S9 with ⟨%g5, %hin5, F9⟩
            ihave S10 := (Entails.of_eq (outSlotV_pos d L fx hm0)) $$ S10
            icases S10 with ⟨%g6, F10, R6⟩
            ihave S11 := (Entails.of_eq (outSlotV_pos d L fx hm1)) $$ S11
            icases S11 with ⟨%g7, F11, R7⟩
            ihave HX := (Entails.of_eq (xSet_out (xP d L fx) k.val hk)) $$ HX
            icases HX with ⟨-, -, HX⟩
            ihave HOut := (Entails.of_eq (oSet_out (oMix d L fx k.val) k.val hk)) $$ HOut
            icases HOut with ⟨Y0, Y1, HOut⟩
            ihave Y0 := (Entails.of_eq ((oMix_ge d L fx (t := k.val) (n := 2 * k.val) (by omega)).trans (oP_pos (F := F) d L v0))) $$ Y0
            icases Y0 with ⟨%f0, Y0⟩
            ihave Y0 := (Entails.of_eq (out_congr d L (off_5 L k v0).symm (out_inb L _) (k9_off5_inb L k k9_h2) f0)) $$ Y0
            ihave Y1 := (Entails.of_eq ((oMix_ge d L fx (t := k.val) (n := 2 * k.val + 1) (by omega)).trans (oP_pos (F := F) d L v1))) $$ Y1
            icases Y1 with ⟨%f1, Y1⟩
            ihave Y1 := (Entails.of_eq (out_congr d L (off_10 L k v1).symm (out_inb L _) (k9_off10_inb L k k9_h5) f1)) $$ Y1
            sl_exec
            sl_for (laneV0 d L g4) $$ [F8_dst R6]
            case region =>
              intro (j : Fin k9_t2_loop.trips) _
              unfold laneV0
              iintro ⟨HA, %g, HB, %hl⟩
              sl_exec
              sl_step
              isplitl [HA]; · iexact HA
              iexists _; isplitl [HB]; · iexact HB
              ipureintro; exact lanes_step d L a4 a6 g4 g j _ _ hl
            · unfold laneV0
              isplitl [F8_dst]; · iexact F8_dst
              iexists _; isplitl [R6]; · iexact R6
              ipureintro; exact lanes_zero d L a4 a6 g4 _
            iintro %_ HI
            unfold laneV0
            icases HI with ⟨H4, %g6', H6, %hl6⟩
            have hl6 : Lanes d L a4 a6 g4 g6' 200 := Eq.mp (congrArg (Lanes d L a4 a6 g4 g6') trips2) hl6
            sl_exec
            sl_for (laneV1 d L g5) $$ [F9_dst R7]
            case region =>
              intro (j : Fin k9_t3_loop.trips) _
              unfold laneV1
              iintro ⟨HA, %g, HB, %hl⟩
              sl_exec
              sl_step
              isplitl [HA]; · iexact HA
              iexists _; isplitl [HB]; · iexact HB
              ipureintro; exact lanes_step' d L a5 a7 g5 g j _ _ hl
            · unfold laneV1
              isplitl [F9_dst]; · iexact F9_dst
              iexists _; isplitl [R7]; · iexact R7
              ipureintro; exact lanes_zero d L a5 a7 g5 _
            iintro %_ HI
            unfold laneV1
            icases HI with ⟨H5, %g7', H7, %hl7⟩
            have hl7 : Lanes d L a5 a7 g5 g7' 200 := Eq.mp (congrArg (Lanes d L a5 a7 g5 g7') trips3) hl7
            sl_exec
            sl_step
            isplitr; · iexact Hmw
            isplitl [HO]
            · iexists _; isplitr
              rotate_left
              · iexact HO
              ipureintro; intro p hp
              rcases Finset.mem_insert.mp hp with rfl | hp
              · exact .inr rfl
              rcases Finset.mem_insert.mp hp with rfl | hp
              · exact .inr rfl
              rcases Finset.mem_insert.mp hp with rfl | hp
              · exact .inr rfl
              rcases Finset.mem_insert.mp hp with rfl | hp
              · exact .inr rfl
              exact hW' p hp
            isplitl [HX F8_src F9_src]
            · iapply (Entails.of_eq (xSet_in (xP d L fx) k.val hk).symm)
              isplitl [F8_src]; · iapply (Entails.of_eq (xP_pos d L fx v0).symm); iexact F8_src
              isplitl [F9_src]; · iapply (Entails.of_eq (xP_pos d L fx v1).symm); iexact F9_src
              iexact HX
            isplitl [HOut F10_dst F11_dst]
            · iapply (Entails.of_eq (oSet_in (oMix d L fx (k.val + 1)) k.val hk (by omega)).symm)
              isplitl [F10_dst]; · iapply (Entails.of_eq ((oMix_lt d L fx (t := k.val + 1) (n := 2 * k.val - 2) (by omega)).trans (oQ_pos d L fx hm0.2)).symm); iexact F10_dst
              isplitl [F11_dst]
              · iapply (Entails.of_eq ((oMix_lt d L fx (t := k.val + 1) (n := 2 * k.val - 1) (by omega)).trans (oQ_pos d L fx (n := 2 * k.val - 1) (by have := hm1.2; rwa [show 2 * k.val + 1 - 2 = 2 * k.val - 1 by omega] at this))).symm)
                iapply (Entails.of_eq (congrArg (oqPiece d L fx) (show 2 * k.val + 1 - 2 = 2 * k.val - 1 by omega))); iexact F11_dst
              iapply (Entails.of_eq (oMix_core d L fx k.val)); iexact HOut
            isplitl [H4 F8]
            · iapply (Entails.of_eq (congrArg (inSlotV d L fx a4 cc9_scratch4.sem) (show 2 * k.val + 2 = 2 * (k.val + 1) by ring)))
              iapply (Entails.of_eq (inSlotV_neg d L fx v2).symm)
              isplitl [H4]; · iexists _; iexact H4
              iexact F8
            isplitl [F10 H6]
            · iapply (Entails.of_eq (congrArg (outSlotV d L fx a6 cc9_scratch6.sem) (show 2 * k.val + 2 = 2 * (k.val + 1) by ring)))
              iapply (fl_outV d L fx (off_5 L k v0) (k9_off5_inb L k k9_h2) v0 a4 a6 cc9_scratch6.sem f0 g4 g6' hl6 hin4); iexists _
              isplitr
              rotate_left
              · isplitl [F10]; · iexact F10
                iexact H6
              ipureintro; intro y; rfl
            isplitl [H5 F9]
            · iapply (Entails.of_eq (congrArg (inSlotV d L fx a5 cc9_scratch5.sem) (show 2 * k.val + 3 = 2 * (k.val + 1) + 1 by ring)))
              iapply (Entails.of_eq (inSlotV_neg d L fx v3').symm)
              isplitl [H5]; · iexists _; iexact H5
              iexact F9
            · iapply (Entails.of_eq (congrArg (outSlotV d L fx a7 cc9_scratch7.sem) (show 2 * k.val + 1 + 2 = 2 * (k.val + 1) + 1 by ring)))
              iapply (fl_outV d L fx (off_10 L k v1) (k9_off10_inb L k k9_h5) v1 a5 a7 cc9_scratch7.sem f1 g5 g7' hl7 hin5); iexists _
              isplitr
              rotate_left
              · isplitl [F11]; · iexact F11
                iexact H7
              ipureintro; intro y; rfl
          · -- the last trip of a tile with fifteen pieces: the second slot only drains
            have k9_h1 : k9_cond1 k = 1#1 := (cond1_iff k).mpr (by omega)
            have k9_h2 : k9_cond2 L k = 1#1 := cond2_iff L k
            have k9_h3 : ¬ k9_cond3 L k = 1#1 := fun h => absurd ((cond3_iff L k).mp h) (by omega)
            have k9_h4 : k9_cond4 k = 1#1 := (cond4_iff k).mpr (by omega)
            have k9_h5 : ¬ k9_cond5 L k = 1#1 := fun h => absurd ((cond5_iff L k).mp h) (by first | (unfold valid big at *; omega) | (unfold big at *; omega) | omega)
            have k9_h6 : ¬ k9_cond6 L k = 1#1 := fun h => absurd ((cond6_iff L k).mp h) (by first | (unfold valid big at *; omega) | (unfold big at *; omega) | omega)
            have v0 : valid L (2 * k.val) := by unfold valid big at *; omega
            have v1 : ¬ valid L (2 * k.val + 1) := by unfold valid big at *; omega
            have v2 : ¬ valid L (2 * k.val + 2) := by unfold valid big at *; omega
            have v3' : ¬ valid L (2 * k.val + 3) := by unfold valid big at *; omega
            have hm0 : 2 ≤ 2 * k.val ∧ valid L (2 * k.val - 2) := ⟨by omega, by unfold valid big at *; omega⟩
            have hm1 : 2 ≤ 2 * k.val + 1 ∧ valid L (2 * k.val + 1 - 2) := ⟨by omega, by unfold valid big at *; omega⟩
            ihave S8 := (Entails.of_eq (inSlotV_pos d L fx v0)) $$ S8
            icases S8 with ⟨%g4, %hin4, F8⟩
            ihave S9 := (Entails.of_eq (inSlotV_neg d L fx v1)) $$ S9
            icases S9 with ⟨⟨%g5, H5⟩, F9⟩
            ihave S10 := (Entails.of_eq (outSlotV_pos d L fx hm0)) $$ S10
            icases S10 with ⟨%g6, F10, R6⟩
            ihave S11 := (Entails.of_eq (outSlotV_pos d L fx hm1)) $$ S11
            icases S11 with ⟨%g7, F11, R7⟩
            ihave HX := (Entails.of_eq (xSet_out (xP d L fx) k.val hk)) $$ HX
            icases HX with ⟨-, -, HX⟩
            ihave HOut := (Entails.of_eq (oSet_out (oMix d L fx k.val) k.val hk)) $$ HOut
            icases HOut with ⟨Y0, -, HOut⟩
            ihave Y0 := (Entails.of_eq ((oMix_ge d L fx (t := k.val) (n := 2 * k.val) (by omega)).trans (oP_pos (F := F) d L v0))) $$ Y0
            icases Y0 with ⟨%f0, Y0⟩
            ihave Y0 := (Entails.of_eq (out_congr d L (off_5 L k v0).symm (out_inb L _) (k9_off5_inb L k k9_h2) f0)) $$ Y0
            sl_exec
            sl_for (laneV0 d L g4) $$ [F8_dst R6]
            case region =>
              intro (j : Fin k9_t2_loop.trips) _
              unfold laneV0
              iintro ⟨HA, %g, HB, %hl⟩
              sl_exec
              sl_step
              isplitl [HA]; · iexact HA
              iexists _; isplitl [HB]; · iexact HB
              ipureintro; exact lanes_step d L a4 a6 g4 g j _ _ hl
            · unfold laneV0
              isplitl [F8_dst]; · iexact F8_dst
              iexists _; isplitl [R6]; · iexact R6
              ipureintro; exact lanes_zero d L a4 a6 g4 _
            iintro %_ HI
            unfold laneV0
            icases HI with ⟨H4, %g6', H6, %hl6⟩
            have hl6 : Lanes d L a4 a6 g4 g6' 200 := Eq.mp (congrArg (Lanes d L a4 a6 g4 g6') trips2) hl6
            sl_exec
            sl_step
            isplitr; · iexact Hmw
            isplitl [HO]
            · iexists _; isplitr
              rotate_left
              · iexact HO
              ipureintro; intro p hp
              rcases Finset.mem_insert.mp hp with rfl | hp
              · exact .inr rfl
              rcases Finset.mem_insert.mp hp with rfl | hp
              · exact .inr rfl
              rcases Finset.mem_insert.mp hp with rfl | hp
              · exact .inr rfl
              exact hW' p hp
            isplitl [HX F8_src]
            · iapply (Entails.of_eq (xSet_in (xP d L fx) k.val hk).symm)
              isplitl [F8_src]; · iapply (Entails.of_eq (xP_pos d L fx v0).symm); iexact F8_src
              isplitr; · iapply (Entails.of_eq (xP_neg d L fx v1).symm); iempintro
              iexact HX
            isplitl [HOut F10_dst F11_dst]
            · iapply (Entails.of_eq (oSet_in (oMix d L fx (k.val + 1)) k.val hk (by omega)).symm)
              isplitl [F10_dst]; · iapply (Entails.of_eq ((oMix_lt d L fx (t := k.val + 1) (n := 2 * k.val - 2) (by omega)).trans (oQ_pos d L fx hm0.2)).symm); iexact F10_dst
              isplitl [F11_dst]
              · iapply (Entails.of_eq ((oMix_lt d L fx (t := k.val + 1) (n := 2 * k.val - 1) (by omega)).trans (oQ_pos d L fx (n := 2 * k.val - 1) (by have := hm1.2; rwa [show 2 * k.val + 1 - 2 = 2 * k.val - 1 by omega] at this))).symm)
                iapply (Entails.of_eq (congrArg (oqPiece d L fx) (show 2 * k.val + 1 - 2 = 2 * k.val - 1 by omega))); iexact F11_dst
              iapply (Entails.of_eq (oMix_core d L fx k.val)); iexact HOut
            isplitl [H4 F8]
            · iapply (Entails.of_eq (congrArg (inSlotV d L fx a4 cc9_scratch4.sem) (show 2 * k.val + 2 = 2 * (k.val + 1) by ring)))
              iapply (Entails.of_eq (inSlotV_neg d L fx v2).symm)
              isplitl [H4]; · iexists _; iexact H4
              iexact F8
            isplitl [F10 H6]
            · iapply (Entails.of_eq (congrArg (outSlotV d L fx a6 cc9_scratch6.sem) (show 2 * k.val + 2 = 2 * (k.val + 1) by ring)))
              iapply (fl_outV d L fx (off_5 L k v0) (k9_off5_inb L k k9_h2) v0 a4 a6 cc9_scratch6.sem f0 g4 g6' hl6 hin4); iexists _
              isplitr
              rotate_left
              · isplitl [F10]; · iexact F10
                iexact H6
              ipureintro; intro y; rfl
            isplitl [H5 F9]
            · iapply (Entails.of_eq (congrArg (inSlotV d L fx a5 cc9_scratch5.sem) (show 2 * k.val + 3 = 2 * (k.val + 1) + 1 by ring)))
              iapply (Entails.of_eq (inSlotV_neg d L fx v3').symm)
              isplitl [H5]; · iexists _; iexact H5
              iexact F9
            · iapply (Entails.of_eq (outSlotV_neg d L fx (m := 2 * (k.val + 1) + 1) (by intro h; apply v1; have := h.2; rwa [show 2 * (k.val + 1) + 1 - 2 = 2 * k.val + 1 by omega] at this)).symm)
              isplitl [R7]; · iexists _; iexact R7
              iexact F11
    · have hk0 : k.val = 0 := by omega
      -- the first trip: nothing to drain
      have k9_h1 : ¬ k9_cond1 k = 1#1 := fun h => absurd ((cond1_iff k).mp h) (by omega)
      have k9_h2 : k9_cond2 L k = 1#1 := cond2_iff L k
      have k9_h3 : k9_cond3 L k = 1#1 := (cond3_iff L k).mpr (by omega)
      have k9_h4 : ¬ k9_cond4 k = 1#1 := fun h => absurd ((cond4_iff k).mp h) (by omega)
      have k9_h5 : k9_cond5 L k = 1#1 := (cond5_iff L k).mpr (by first | (unfold valid big at *; omega) | (unfold big at *; omega) | omega)
      have k9_h6 : k9_cond6 L k = 1#1 := (cond6_iff L k).mpr (by first | (unfold valid big at *; omega) | (unfold big at *; omega) | omega)
      have v0 : valid L (2 * k.val) := by unfold valid big at *; omega
      have v1 : valid L (2 * k.val + 1) := by unfold valid big at *; omega
      have v2 : valid L (2 * k.val + 2) := by unfold valid big at *; omega
      have v3' : valid L (2 * k.val + 3) := by unfold valid big at *; omega
      have hm0 : ¬ (2 ≤ 2 * k.val ∧ valid L (2 * k.val - 2)) := by omega
      have hm1 : ¬ (2 ≤ 2 * k.val + 1 ∧ valid L (2 * k.val + 1 - 2)) := by omega
      ihave S8 := (Entails.of_eq (inSlotV_pos d L fx v0)) $$ S8
      icases S8 with ⟨%g4, %hin4, F8⟩
      ihave S9 := (Entails.of_eq (inSlotV_pos d L fx v1)) $$ S9
      icases S9 with ⟨%g5, %hin5, F9⟩
      ihave S10 := (Entails.of_eq (outSlotV_neg d L fx hm0)) $$ S10
      icases S10 with ⟨⟨%g6, R6⟩, F10⟩
      ihave S11 := (Entails.of_eq (outSlotV_neg d L fx hm1)) $$ S11
      icases S11 with ⟨⟨%g7, R7⟩, F11⟩
      ihave HX := (Entails.of_eq (xSet_out (xP d L fx) k.val hk)) $$ HX
      icases HX with ⟨X2, X3, HX⟩
      ihave X2 := (Entails.of_eq (xP_pos d L fx v2)) $$ X2
      ihave X2 := (Entails.of_eq (in_congr d L (off_6 L k v2).symm (in_inb L _) (k9_off6_inb L k k9_h3) fx)) $$ X2
      ihave X3 := (Entails.of_eq (xP_pos d L fx v3')) $$ X3
      ihave X3 := (Entails.of_eq (in_congr d L (off_11 L k v3').symm (in_inb L _) (k9_off11_inb L k k9_h6) fx)) $$ X3
      ihave HOut := (Entails.of_eq (oSet_out (oMix d L fx k.val) k.val hk)) $$ HOut
      icases HOut with ⟨Y0, Y1, HOut⟩
      ihave Y0 := (Entails.of_eq ((oMix_ge d L fx (t := k.val) (n := 2 * k.val) (by omega)).trans (oP_pos (F := F) d L v0))) $$ Y0
      icases Y0 with ⟨%f0, Y0⟩
      ihave Y0 := (Entails.of_eq (out_congr d L (off_5 L k v0).symm (out_inb L _) (k9_off5_inb L k k9_h2) f0)) $$ Y0
      ihave Y1 := (Entails.of_eq ((oMix_ge d L fx (t := k.val) (n := 2 * k.val + 1) (by omega)).trans (oP_pos (F := F) d L v1))) $$ Y1
      icases Y1 with ⟨%f1, Y1⟩
      ihave Y1 := (Entails.of_eq (out_congr d L (off_10 L k v1).symm (out_inb L _) (k9_off10_inb L k k9_h5) f1)) $$ Y1
      sl_exec
      sl_for (laneV0 d L g4) $$ [F8_dst R6]
      case region =>
        intro (j : Fin k9_t2_loop.trips) _
        unfold laneV0
        iintro ⟨HA, %g, HB, %hl⟩
        sl_exec
        sl_step
        isplitl [HA]; · iexact HA
        iexists _; isplitl [HB]; · iexact HB
        ipureintro; exact lanes_step d L a4 a6 g4 g j _ _ hl
      · unfold laneV0
        isplitl [F8_dst]; · iexact F8_dst
        iexists _; isplitl [R6]; · iexact R6
        ipureintro; exact lanes_zero d L a4 a6 g4 _
      iintro %_ HI
      unfold laneV0
      icases HI with ⟨H4, %g6', H6, %hl6⟩
      have hl6 : Lanes d L a4 a6 g4 g6' 200 := Eq.mp (congrArg (Lanes d L a4 a6 g4 g6') trips2) hl6
      sl_exec
      sl_for (laneV1 d L g5) $$ [F9_dst R7]
      case region =>
        intro (j : Fin k9_t3_loop.trips) _
        unfold laneV1
        iintro ⟨HA, %g, HB, %hl⟩
        sl_exec
        sl_step
        isplitl [HA]; · iexact HA
        iexists _; isplitl [HB]; · iexact HB
        ipureintro; exact lanes_step' d L a5 a7 g5 g j _ _ hl
      · unfold laneV1
        isplitl [F9_dst]; · iexact F9_dst
        iexists _; isplitl [R7]; · iexact R7
        ipureintro; exact lanes_zero d L a5 a7 g5 _
      iintro %_ HI
      unfold laneV1
      icases HI with ⟨H5, %g7', H7, %hl7⟩
      have hl7 : Lanes d L a5 a7 g5 g7' 200 := Eq.mp (congrArg (Lanes d L a5 a7 g5 g7') trips3) hl7
      sl_exec
      sl_step
      isplitr; · iexact Hmw
      isplitl [HO]
      · iexists _; isplitr
        rotate_left
        · iexact HO
        ipureintro; intro p hp
        rcases Finset.mem_insert.mp hp with rfl | hp
        · exact .inr rfl
        rcases Finset.mem_insert.mp hp with rfl | hp
        · exact .inr rfl
        exact hW' p hp
      isplitl [HX F8_src F9_src]
      · iapply (Entails.of_eq (xSet_in (xP d L fx) k.val hk).symm)
        isplitl [F8_src]; · iapply (Entails.of_eq (xP_pos d L fx v0).symm); iexact F8_src
        isplitl [F9_src]; · iapply (Entails.of_eq (xP_pos d L fx v1).symm); iexact F9_src
        iexact HX
      isplitl [HOut]
      · iapply (Entails.of_eq (congrArg (fun s => bigSep s (oMix d L fx (k.val + 1))) (show oCore k.val = oSet (k.val + 1) by rw [hk0]; decide)))
        iapply (Entails.of_eq (oMix_core d L fx k.val)); iexact HOut
      isplitl [F8]
      · iapply (Entails.of_eq (congrArg (inSlotV d L fx a4 cc9_scratch4.sem) (show 2 * k.val + 2 = 2 * (k.val + 1) by ring)))
        iapply (fl_inV d L fx (off_6 L k v2) (k9_off6_inb L k k9_h3) v2 a4 cc9_scratch4.sem); iexists _, _
        isplitr
        rotate_left
        · iexact F8
        ipureintro; intro y; rfl
      isplitl [F10 H6]
      · iapply (Entails.of_eq (congrArg (outSlotV d L fx a6 cc9_scratch6.sem) (show 2 * k.val + 2 = 2 * (k.val + 1) by ring)))
        iapply (fl_outV d L fx (off_5 L k v0) (k9_off5_inb L k k9_h2) v0 a4 a6 cc9_scratch6.sem f0 g4 g6' hl6 hin4); iexists _
        isplitr
        rotate_left
        · isplitl [F10]; · iexact F10
          iexact H6
        ipureintro; intro y; rfl
      isplitl [F9]
      · iapply (Entails.of_eq (congrArg (inSlotV d L fx a5 cc9_scratch5.sem) (show 2 * k.val + 3 = 2 * (k.val + 1) + 1 by ring)))
        iapply (fl_inV d L fx (off_11 L k v3') (k9_off11_inb L k k9_h6) v3' a5 cc9_scratch5.sem); iexists _, _
        isplitr
        rotate_left
        · iexact F9
        ipureintro; intro y; rfl
      · iapply (Entails.of_eq (congrArg (outSlotV d L fx a7 cc9_scratch7.sem) (show 2 * k.val + 1 + 2 = 2 * (k.val + 1) + 1 by ring)))
        iapply (fl_outV d L fx (off_10 L k v1) (k9_off10_inb L k k9_h5) v1 a5 a7 cc9_scratch7.sem f1 g5 g7' hl7 hin5); iexists _
        isplitr
        rotate_left
        · isplitl [F11]; · iexact F11
          iexact H7
        ipureintro; intro y; rfl
  · unfold invV
    isplitr; · iexact Hmw
    isplitl [HO]
    · iexists W; isplitr
      · ipureintro; exact fun p hp => .inl hp
      · iexact HO
    isplitl [HX]; · iexact HX
    isplitl [HOut]; · iapply (Entails.of_eq (oMix_zero d L fx).symm); iexact HOut
    isplitl [S8]; · iexact S8
    isplitl [H6 Hs10]
    · rw [outSlotV_neg d L fx (by omega)]; isplitl [H6]; · iexists _; iexact H6
      iexact Hs10
    isplitl [S9]; · iexact S9
    rw [outSlotV_neg d L fx (by omega)]; isplitl [H7]; · iexists _; iexact H7
    iexact Hs11
  iintro %acc' HI
  ihave HI := (Entails.of_eq (congrArg (fun t => invV d L O W fx t acc') trips1)) $$ HI
  unfold invV
  icases HI with ⟨-, ⟨%W', %hW', HO⟩, HX, HOut, S8, S10, S9, S11⟩
  have nv16 : ¬ valid L (2 * 8) := by unfold valid; omega
  have nv17 : ¬ valid L (2 * 8 + 1) := by unfold valid; omega
  have hm14 : 2 ≤ 2 * 8 ∧ valid L (2 * 8 - 2) := ⟨by omega, Or.inl (by omega)⟩
  ihave S8 := (Entails.of_eq (inSlotV_neg d L fx nv16)) $$ S8
  icases S8 with ⟨⟨%g4', H4⟩, Hs8⟩
  ihave S9 := (Entails.of_eq (inSlotV_neg d L fx nv17)) $$ S9
  icases S9 with ⟨⟨%g5', H5⟩, Hs9⟩
  ihave S10 := (Entails.of_eq (outSlotV_pos d L fx hm14)) $$ S10
  icases S10 with ⟨%g6', F10, R6⟩
  by_cases hb : big L
  · have k9_h8 : k9_cond8 L = 1#1 := (cond8_iff L).mpr hb
    have hm15 : 2 ≤ 2 * 8 + 1 ∧ valid L (2 * 8 + 1 - 2) := ⟨by omega, Or.inr ⟨by omega, hb⟩⟩
    ihave S11 := (Entails.of_eq (outSlotV_pos d L fx hm15)) $$ S11
    icases S11 with ⟨%g7', F11, R7⟩
    sl_exec
    sl_step
    isplitl [HX]; · iapply (xRange_end d L fx); iexact HX
    isplitl [HOut F10_dst F11_dst]
    · iapply (Entails.of_eq (oRange_end (oQ d L fx)).symm)
      isplitl [F10_dst]; · iapply (Entails.of_eq (oQ_pos d L fx hm14.2).symm); iexact F10_dst
      isplitl [F11_dst]; · iapply (Entails.of_eq (oQ_pos d L fx hm15.2).symm); iexact F11_dst
      iapply (Entails.of_eq (oMix_end d L fx)); iexact HOut
    isplitl [H4]; · iexists _; iexact H4
    isplitl [H5]; · iexists _; iexact H5
    isplitl [R6]; · iexists _; iexact R6
    isplitl [R7]; · iexists _; iexact R7
    isplitl [Hs8]; · iexact Hs8
    isplitl [Hs9]; · iexact Hs9
    isplitl [F10]; · iexact F10
    isplitl [F11]; · iexact F11
    isplitl [HO]
    · iexists _; isplitr
      rotate_left
      · iexact HO
      ipureintro; intro p hp
      rcases Finset.mem_insert.mp hp with rfl | hp
      · exact .inr rfl
      rcases Finset.mem_insert.mp hp with rfl | hp
      · exact .inr rfl
      exact hW' p hp
    iexact HR
  · have k9_h8 : ¬ k9_cond8 L = 1#1 := fun h => hb ((cond8_iff L).mp h)
    have hm15 : ¬ (2 ≤ 2 * 8 + 1 ∧ valid L (2 * 8 + 1 - 2)) := by intro h; have := h.2; unfold valid at this; omega
    ihave S11 := (Entails.of_eq (outSlotV_neg d L fx hm15)) $$ S11
    icases S11 with ⟨⟨%g7', R7⟩, F11⟩
    sl_exec
    sl_step
    isplitl [HX]; · iapply (xRange_end d L fx); iexact HX
    isplitl [HOut F10_dst]
    · iapply (Entails.of_eq (oRange_end (oQ d L fx)).symm)
      isplitl [F10_dst]; · iapply (Entails.of_eq (oQ_pos d L fx hm14.2).symm); iexact F10_dst
      isplitr; · iapply (Entails.of_eq (oQ_neg d L fx (n := 15) (by unfold valid; omega)).symm); iempintro
      iapply (Entails.of_eq (oMix_end d L fx)); iexact HOut
    isplitl [H4]; · iexists _; iexact H4
    isplitl [H5]; · iexists _; iexact H5
    isplitl [R6]; · iexists _; iexact R6
    isplitl [R7]; · iexists _; iexact R7
    isplitl [Hs8]; · iexact Hs8
    isplitl [Hs9]; · iexact Hs9
    isplitl [F10]; · iexact F10
    isplitl [F11]; · iexact F11
    isplitl [HO]
    · iexists _; isplitr
      rotate_left
      · iexact HO
      ipureintro; intro p hp
      rcases Finset.mem_insert.mp hp with rfl | hp
      · exact .inr rfl
      exact hW' p hp
    iexact HR

/-! The subcore's scoped storage: the four staging buffers and the four semaphores of this call, and the rest. -/

abbrev c8 : GSem nD τ sig := (thr d L, SemLoc.dma cc9_scratch4.sem)
abbrev c9 : GSem nD τ sig := (thr d L, SemLoc.dma cc9_scratch5.sem)
abbrev c10 : GSem nD τ sig := (thr d L, SemLoc.dma cc9_scratch6.sem)
abbrev c11 : GSem nD τ sig := (thr d L, SemLoc.dma cc9_scratch7.sem)

omit [FloatOps F] in
theorem ownSems0_V :
    (ownSems0 (thr d L) : sProp 𝕄)
      = iprop(semVal (c8 d L) 0 ∗ semVal (c9 d L) 0 ∗ semVal (c10 d L) 0 ∗ semVal (c11 d L) 0
          ∗ bigSep (((((ownCells (thr d L)).erase (c8 d L)).erase (c9 d L)).erase (c10 d L)).erase (c11 d L)) fun g => semVal g 0) := by
  unfold SparseCore.Cfg.ownSems0
  rw [SparseCore.bigSep_erase' ((mem_ownCells (g := c8 d L)).mpr ⟨rfl, by
      show (SemLoc.dma cc9_scratch4.sem : SemLoc sig).isScoped .scVector = true; decide⟩),
    SparseCore.bigSep_erase' (Finset.mem_erase.mpr ⟨fun e => absurd (Prod.mk.inj e).2 (by decide), (mem_ownCells (g := c9 d L)).mpr ⟨rfl, by
      show (SemLoc.dma cc9_scratch5.sem : SemLoc sig).isScoped .scVector = true; decide⟩⟩),
    SparseCore.bigSep_erase' (Finset.mem_erase.mpr ⟨fun e => absurd (Prod.mk.inj e).2 (by decide), Finset.mem_erase.mpr ⟨fun e => absurd (Prod.mk.inj e).2 (by decide),
      (mem_ownCells (g := c10 d L)).mpr ⟨rfl, by show (SemLoc.dma cc9_scratch6.sem : SemLoc sig).isScoped .scVector = true; decide⟩⟩⟩),
    SparseCore.bigSep_erase' (Finset.mem_erase.mpr ⟨fun e => absurd (Prod.mk.inj e).2 (by decide), Finset.mem_erase.mpr ⟨fun e => absurd (Prod.mk.inj e).2 (by decide),
      Finset.mem_erase.mpr ⟨fun e => absurd (Prod.mk.inj e).2 (by decide),
      (mem_ownCells (g := c11 d L)).mpr ⟨rfl, by show (SemLoc.dma cc9_scratch7.sem : SemLoc sig).isScoped .scVector = true; decide⟩⟩⟩⟩)]

abbrev pV (L : grid9.Coords) : Proc τ := Proc.scVector (cV L) (jV L)

omit [FloatOps F] in
theorem ownBufs_V :
    (ownBufs (thr d L) : sProp 𝕄)
      = iprop((∃ f, (thr d L).loc cc9_scratch0 ↦{fullShare} f) ∗ (∃ f, (thr d L).loc cc9_scratch1 ↦{fullShare} f)
          ∗ (∃ f, (thr d L).loc cc9_scratch2 ↦{fullShare} f) ∗ (∃ f, (thr d L).loc cc9_scratch3 ↦{fullShare} f)
          ∗ bigSep (((((ownRefs (τ := τ) (pV L)).erase ((pV L).devRef cc9_scratch0)).erase ((pV L).devRef cc9_scratch1)).erase
              ((pV L).devRef cc9_scratch2)).erase ((pV L).devRef cc9_scratch3))
              fun b => iprop(∃ f, ((d, b) : Loc nD τ sig) ↦{fullShare} f)) := by
  unfold SparseCore.Cfg.ownBufs
  refine (SparseCore.bigSep_erase' (SparseCore.Cfg.mem_ownRefs_of_owner (p := pV L) (b := (pV L).devRef cc9_scratch0) rfl)).trans ?_
  rw [SparseCore.bigSep_erase' (Finset.mem_erase.mpr ⟨fun e => absurd (Proc.devRef_injective _ e) (show (cc9_scratch1 : Ref sig .scVector) ≠ cc9_scratch0 by decide),
      SparseCore.Cfg.mem_ownRefs_of_owner (p := pV L) (b := (pV L).devRef cc9_scratch1) rfl⟩),
    SparseCore.bigSep_erase' (Finset.mem_erase.mpr ⟨fun e => absurd (Proc.devRef_injective _ e) (show (cc9_scratch2 : Ref sig .scVector) ≠ cc9_scratch1 by decide),
      Finset.mem_erase.mpr ⟨fun e => absurd (Proc.devRef_injective _ e) (show (cc9_scratch2 : Ref sig .scVector) ≠ cc9_scratch0 by decide),
      SparseCore.Cfg.mem_ownRefs_of_owner (p := pV L) (b := (pV L).devRef cc9_scratch2) rfl⟩⟩),
    SparseCore.bigSep_erase' (Finset.mem_erase.mpr ⟨fun e => absurd (Proc.devRef_injective _ e) (show (cc9_scratch3 : Ref sig .scVector) ≠ cc9_scratch2 by decide),
      Finset.mem_erase.mpr ⟨fun e => absurd (Proc.devRef_injective _ e) (show (cc9_scratch3 : Ref sig .scVector) ≠ cc9_scratch1 by decide),
      Finset.mem_erase.mpr ⟨fun e => absurd (Proc.devRef_injective _ e) (show (cc9_scratch3 : Ref sig .scVector) ≠ cc9_scratch0 by decide),
      SparseCore.Cfg.mem_ownRefs_of_owner (p := pV L) (b := (pV L).devRef cc9_scratch3) rfl⟩⟩⟩)]

/-- The rest of the subcore's scoped storage, which the task does not touch. -/
def restR : sProp 𝕄 :=
  iprop((bigSep (((((ownRefs (τ := τ) (pV L)).erase ((pV L).devRef cc9_scratch0)).erase ((pV L).devRef cc9_scratch1)).erase
              ((pV L).devRef cc9_scratch2)).erase ((pV L).devRef cc9_scratch3))
              fun b => iprop(∃ f, ((d, b) : Loc nD τ sig) ↦{fullShare} f))
      ∗ bigSep (((((ownCells (thr d L)).erase (c8 d L)).erase (c9 d L)).erase (c10 d L)).erase (c11 d L)) fun g => semVal g 0)

theorem body_pre (hO : ∀ g, O g none = 0) :
    iprop(levAts (K (F := F)).L (K (F := F)).lev ∗ emp ∗ goRes d L fx ∗ ownBufs (thr d L) ∗ ownSems0 (thr d L) ∗ owes (thr d L) O W)
      ⊢ runPre d L O W fx (restR (F := F) d L) := by
  rw [ownSems0_V, ownBufs_V]
  unfold goRes runPre restR
  iintro ⟨#Hlv, -, ⟨HX, HOut⟩, ⟨H4, H5, H6, H7, Hbufs⟩, ⟨Hs8, Hs9, Hs10, Hs11, Hsems⟩, HO⟩
  ihave Hmw := ((K (F := F)).mayWaits_none (thr := thr d L) hO) $$ Hlv
  isplitr; · iexact Hmw
  isplitl [HO]; · iexact HO
  isplitl [HX]; · iexact HX
  isplitl [HOut]; · iexact HOut
  isplitl [H4]; · iexact H4
  isplitl [H5]; · iexact H5
  isplitl [H6]; · iexact H6
  isplitl [H7]; · iexact H7
  isplitl [Hs8]; · iexact Hs8
  isplitl [Hs9]; · iexact Hs9
  isplitl [Hs10]; · iexact Hs10
  isplitl [Hs11]; · iexact Hs11
  isplitl [Hbufs]; · iexact Hbufs
  iexact Hsems

theorem body_post :
    runPost d L O W fx (restR (F := F) d L)
      ⊢ iprop(tdRes d L fx ∗ ownBufs (thr d L) ∗ ownSems0 (thr d L) ∗ ∃ W', ⌜∀ p ∈ W', p ∈ W ∨ p.2 = none⌝ ∗ owes (thr d L) O W') := by
  rw [ownSems0_V, ownBufs_V]
  unfold tdRes runPost restR
  iintro ⟨HX, HOut, H4, H5, H6, H7, Hs8, Hs9, Hs10, Hs11, HW, Hbufs, Hsems⟩
  isplitl [HX HOut]
  · isplitl [HX]; · iexact HX
    iexact HOut
  isplitl [H4 H5 H6 H7 Hbufs]
  · isplitl [H4]; · iexact H4
    isplitl [H5]; · iexact H5
    isplitl [H6]; · iexact H6
    isplitl [H7]; · iexact H7
    iexact Hbufs
  isplitl [Hs8 Hs9 Hs10 Hs11 Hsems]
  · isplitl [Hs8]; · iexact Hs8
    isplitl [Hs9]; · iexact Hs9
    isplitl [Hs10]; · iexact Hs10
    isplitl [Hs11]; · iexact Hs11
    iexact Hsems
  iexact HW

/-- The task in the launch theorem's shape: from what the call hands the tile and the subcore's scoped storage to
    what the tile hands back and the storage again. -/
theorem tile_body (hF : (K (F := F)).Facts) (hO : ∀ g, O g none = 0) :
    iprop(levAts (K (F := F)).L (K (F := F)).lev ∗ emp ∗ goRes d L fx ∗ scopedBufs (thr d L) ∗ scopedSems0 (thr d L) ∗ owes (thr d L) O W)
      ⊢ wp frame (wpE (defs₀ (F := F)) 𝒱₀ (thr d L) none) Set.univ
          (cc9_sc_group L xtW (Memref.isWhole_whole _) oW (Memref.isWhole_whole _) a4 (Memref.isWhole_whole _) a5 (Memref.isWhole_whole _)
            a6 (Memref.isWhole_whole _) a7 (Memref.isWhole_whole _) cc9_scratch4 cc9_scratch5 cc9_scratch6 cc9_scratch7)
          fun _ => iprop(tdRes d L fx ∗ scopedBufs (thr d L) ∗ scopedSems0 (thr d L)
            ∗ ∃ W', ⌜∀ p ∈ W', p ∈ W ∨ p.2 = none⌝ ∗ owes (thr d L) O W') := by
  rw [(K (F := F)).scopedBufs_V hF d (cV L) (jV L), SparseCore.Cfg.scopedSems0_V (Val := Elt F) d (cV L) (jV L)]
  exact (body_pre d L O W fx hO).trans ((tile_run d L O W fx (restR (F := F) d L)).trans (wp_mono frame _ _ fun _ => body_post d L O W fx))

end Tile

end Cert.Proof.TileB9

end
-- ==== Proof.TileVal10.lean ====
/-
  What the staging buffers of one vector subcore hold while it copies a piece of 3200 consecutive elements of row 10 of
  the transposed argument into the flat result, read index by index. No program and no ownership here: only the contents.

  A transfer lands the piece in row 0 of an 8 × 3200 staging array (`InRow`: position (0, t) of that row holds element
  (0, pos + t) of the transposed argument, `pos` the piece's first column). A loop of 200 trips copies that row, 16 lanes
  per trip, into the first 3200 elements of a flat staging array of 25600: trip `j` reads the 1 × 16 window at columns
  [16 j, 16 j + 16) of row 0 and writes it, flattened, at elements [16 j, 16 j + 16). After `j` trips the first 16 j
  elements of the flat array are the first 16 j elements of the row (`Lanes`); a trip extends the prefix by 16
  (`lanes_step`: an element below 16 j is outside the window written and keeps its value, an element of the window reads
  the lane written there, which is the row's element at the same column). A second transfer writes the first 3200
  elements of the flat array to the piece of the result at the same `pos`; so every element of that piece of the result
  holds the element of row 10 of the transposed argument at its own position (`out_written`): the composite of the three
  index maps t ↦ (0, pos + t) ↦ (0, t) ↦ t ↦ pos + t is the identity on positions of the row.
-/
import proofs.«206869_g37898791420194_cont_8to1_b_558_20_alg».proof.Proof.TileK10Defs
import proofs.«206869_g37898791420194_cont_8to1_b_558_20_alg».proof.Proof.Spec
import Idealize.ShloMosaic.Lib.WritesUnit
import Idealize.ShloMosaic.Lib.ValueLayout

noncomputable section

namespace Cert.Proof.TileVal10

open Cert.Proof.TileK10 Cert.KernelIdeal Cert.KernelIdeal.Gen
open Idealize.ShloMosaic Idealize.ShloMosaic.ValueIdx

variable {F : FTy → Type} [FloatOps F]
variable (d : Dev nD) (L : grid10.Coords)
variable (fx : Buf (Elt F) ((Memref.whole main_v0_scv : Memref sig .scVector .hbm S22x1600000 .f32).view.loc (thr d L)))

abbrev rowRect : Rect S8x3200 := Rect.unit (s := S8x3200) ![0, 0] S1x3200.size inb_S8x3200_S1x3200_0_0

/-- row 0 of the staging array is piece n of the argument row -/
def InRow (a : Memref sig .scVector .vmem S8x3200 .f32) (ga : Buf (Elt F) (a.view.loc (thr d L))) (n : ℕ) : Prop :=
  ∀ y : S1x3200.Idx, a.view.read (Elt F) ga (rowRect.emb y) = (inM L n).view.read (Elt F) fx y

theorem inRow_fetch (a : Memref sig .scVector .vmem S8x3200 .f32) (gold : Buf (Elt F) (a.view.loc (thr d L)))
    (w : S1x3200.Idx → Elt F .f32) (n : ℕ) (hw : ∀ y, w y = (inM L n).view.read (Elt F) fx y) :
    InRow d L fx a (a.view.writes (Elt F) gold [⟨rowRect, w⟩]) n :=
  fun y => (View.read_writes_cons_emb a.view gold rowRect w [] y).trans (hw y)

def Lanes (a : Memref sig .scVector .vmem S8x3200 .f32) (b : Memref sig .scVector .vmem S25600 .f32)
    (ga : Buf (Elt F) (a.view.loc (thr d L))) (gb : Buf (Elt F) (b.view.loc (thr d L))) (j : ℕ) : Prop :=
  ∀ (r : ℕ) (hr : r < 3200), r < 16 * j →
    b.view.read (Elt F) gb (ix1 (⟨r, by omega⟩ : Fin 25600)) = a.view.read (Elt F) ga (ix2 (0 : Fin 8) (⟨r, hr⟩ : Fin 3200))

theorem lanes_zero (a : Memref sig .scVector .vmem S8x3200 .f32) (b : Memref sig .scVector .vmem S25600 .f32)
    (ga : Buf (Elt F) (a.view.loc (thr d L))) (gb : Buf (Elt F) (b.view.loc (thr d L))) : Lanes d L a b ga gb 0 := by
  intro r hr h; omega

/-- The 1 × 16 window at column `c` of the staging array, read at lane `t`, is element `(0, c + t)`. -/
theorem idx_window {off : Fin 2 → ℕ} {c : ℕ} (h : off = ![0, c]) (p : ∀ a', off a' + S1x16.size a' ≤ S8x3200.size a')
    (t : Fin 16) (hr : c + t.val < 3200) :
    (Rect.unit (s := S8x3200) off S1x16.size p).toLoadRect.idx (ix2 (0 : Fin 1) t) = ix2 (0 : Fin 8) (⟨c + t.val, hr⟩ : Fin 3200) := by
  subst h
  funext a'; apply Fin.ext
  rw [LoadRect.idx_apply]
  match a' with
  | ⟨0, _⟩ => show 0 + 1 * 0 = 0; omega
  | ⟨1, _⟩ => show c + 1 * t.val = c + t.val; omega

/-- One trip of a lane-copy loop, the offsets given by their closed forms. -/
theorem lanes_step_core (a : Memref sig .scVector .vmem S8x3200 .f32) (b : Memref sig .scVector .vmem S25600 .f32)
    (ga : Buf (Elt F) (a.view.loc (thr d L))) (gb : Buf (Elt F) (b.view.loc (thr d L)))
    (t : ℕ) {off3 : Fin 2 → ℕ} {off4 : Fin 1 → ℕ} (h3 : off3 = ![0, 16 * t]) (h4 : off4 = ![16 * t])
    (p3 : ∀ a', off3 a' + S1x16.size a' ≤ S8x3200.size a') (p4 : ∀ a', off4 a' + S16.size a' ≤ S25600.size a')
    (h : Lanes d L a b ga gb t) :
    Lanes d L a b ga (b.view.writes (Elt F) gb [⟨Rect.unit (s := S25600) off4 S16.size p4,
      shapeCast S16 (a.view.readAt (Elt F) (Rect.unit (s := S8x3200) off3 S1x16.size p3).toLoadRect ga) shapeCasts_S1x16_S16⟩]) (t + 1) := by
  intro r hr hlt
  by_cases hlo : r < 16 * t
  · refine (View.read_writes_cons_unit_of_not_mem b.view gb p4 _ [] _ h4 (0 : Fin 1) (Or.inl ?_)).trans (h r hr hlo)
    show r < 16 * t
    exact hlo
  · have hx : r - 16 * t < 16 := by omega
    refine (View.read_writes_cons_unit_of_mem b.view gb p4 _ [] _ (ix1 (⟨r - 16 * t, hx⟩ : Fin 16)) h4 ?_).trans ?_
    · intro a'
      match a' with
      | ⟨0, _⟩ => show r = 16 * t + (r - 16 * t); omega
    · rw [shapeCast_1a_a_apply, View.readAt_apply, idx_window h3 p3 ⟨r - 16 * t, hx⟩ (by show 16 * t + (r - 16 * t) < 3200; omega)]
      congr 2
      apply Fin.ext
      show 16 * t + (r - 16 * t) = r
      omega

theorem lanes_step (a : Memref sig .scVector .vmem S8x3200 .f32) (b : Memref sig .scVector .vmem S25600 .f32)
    (ga : Buf (Elt F) (a.view.loc (thr d L))) (gb : Buf (Elt F) (b.view.loc (thr d L)))
    (j : Fin k10_t2_loop.trips) (p3 : ∀ a', (k10_off3 j) a' + S1x16.size a' ≤ S8x3200.size a')
    (p4 : ∀ a', (k10_off4 j) a' + S16.size a' ≤ S25600.size a') (h : Lanes d L a b ga gb j.val) :
    Lanes d L a b ga (b.view.writes (Elt F) gb [⟨Rect.unit (s := S25600) (k10_off4 j) S16.size p4,
      k10_pay1 (a.view.readAt (Elt F) (Rect.unit (s := S8x3200) (k10_off3 j) S1x16.size p3).toLoadRect ga)⟩]) (j.val + 1) :=
  lanes_step_core d L a b ga gb j.val (k10_off3_eq j) (k10_off4_eq j) p3 p4 h

theorem lanes_step' (a : Memref sig .scVector .vmem S8x3200 .f32) (b : Memref sig .scVector .vmem S25600 .f32)
    (ga : Buf (Elt F) (a.view.loc (thr d L))) (gb : Buf (Elt F) (b.view.loc (thr d L)))
    (j : Fin k10_t3_loop.trips) (p3 : ∀ a', (k10_off8 j) a' + S1x16.size a' ≤ S8x3200.size a')
    (p4 : ∀ a', (k10_off9 j) a' + S16.size a' ≤ S25600.size a') (h : Lanes d L a b ga gb j.val) :
    Lanes d L a b ga (b.view.writes (Elt F) gb [⟨Rect.unit (s := S25600) (k10_off9 j) S16.size p4,
      k10_pay2 (a.view.readAt (Elt F) (Rect.unit (s := S8x3200) (k10_off8 j) S1x16.size p3).toLoadRect ga)⟩]) (j.val + 1) :=
  lanes_step_core d L a b ga gb j.val (k10_off8_eq j) (k10_off9_eq j) p3 p4 h

/-- Position `y` of the write-out window of the flat staging array is its element `y 0`. -/
theorem stg_emb (y : S3200.Idx) (hy : (y 0).val < 25600) :
    (Rect.unit (s := S25600) ![0] S3200.size inb_S25600_S3200_0).emb y = ix1 (⟨(y 0).val, hy⟩ : Fin 25600) := by
  funext a'; apply Fin.ext
  match a' with
  | ⟨0, _⟩ => show 0 + 1 * (y 0).val = (y 0).val; omega

/-- Position `(0, t)` of row 0 of the staging array is its element `(0, t)`. -/
theorem row_emb (t : Fin 3200) : rowRect.emb (ix2 (0 : Fin 1) t) = ix2 (0 : Fin 8) t := by
  funext a'; apply Fin.ext
  match a' with
  | ⟨0, _⟩ => show 0 + 1 * 0 = 0; omega
  | ⟨1, _⟩ => show 0 + 1 * t.val = t.val; omega

/-- Position `(0, t)` of piece `n` of the argument row is element `(0, pos + t)` of the transposed argument;
    position `y` of piece `n` of the result is element `pos + y 0` of the result. -/
theorem in_emb (n : ℕ) (t : Fin 3200) (h : pos L n + t.val < 1600000) :
    (inM L n).view.emb (ix2 (0 : Fin 1) t) = ix2 (10 : Fin 22) (⟨pos L n + t.val, h⟩ : Fin 1600000) := by
  funext a'; apply Fin.ext
  match a' with
  | ⟨0, _⟩ => show 10 + 1 * 0 = 10; omega
  | ⟨1, _⟩ => show pos L n + 1 * t.val = pos L n + t.val; omega

theorem out_emb (n : ℕ) (y : S3200.Idx) (h : pos L n + (y 0).val < 1600000) :
    (outM L n).view.emb y = ix1 (⟨pos L n + (y 0).val, h⟩ : Fin 1600000) := by
  funext a'; apply Fin.ext
  match a' with
  | ⟨0, _⟩ => show pos L n + 1 * (y 0).val = pos L n + (y 0).val; omega

/-- Both lane-copy loops run 200 trips: 200 · 16 = 3200, the whole row. -/
theorem trips2 : k10_t2_loop.trips = 200 := by decide
theorem trips3 : k10_t3_loop.trips = 200 := by decide

/-- After all its trips a lane-copy loop has copied the whole row. -/
theorem lanes_all (a : Memref sig .scVector .vmem S8x3200 .f32) (b : Memref sig .scVector .vmem S25600 .f32)
    (ga : Buf (Elt F) (a.view.loc (thr d L))) (gb : Buf (Elt F) (b.view.loc (thr d L)))
    (h : Lanes d L a b ga gb k10_t2_loop.trips) : Lanes d L a b ga gb 200 := trips2 ▸ h
theorem lanes_all' (a : Memref sig .scVector .vmem S8x3200 .f32) (b : Memref sig .scVector .vmem S25600 .f32)
    (ga : Buf (Elt F) (a.view.loc (thr d L))) (gb : Buf (Elt F) (b.view.loc (thr d L)))
    (h : Lanes d L a b ga gb k10_t3_loop.trips) : Lanes d L a b ga gb 200 := trips3 ▸ h

/-- The write-out of a piece: the first 3200 elements of the flat staging array, which the 200 lane copies filled from
    row 0 of the staging array, which the fetch filled from piece `n` of row 10 of the transposed argument, land at
    piece `n` of the result, at the same positions of the row. -/
theorem out_written (a : Memref sig .scVector .vmem S8x3200 .f32) (b : Memref sig .scVector .vmem S25600 .f32) (n : ℕ)
    (ga : Buf (Elt F) (a.view.loc (thr d L))) (gb : Buf (Elt F) (b.view.loc (thr d L)))
    (f0 : Buf (Elt F) ((outM L n).view.loc (thr d L))) (w : S3200.Idx → Elt F .f32)
    (hw : ∀ y, w y = (stg b).view.read (Elt F) gb y) (hl : Lanes d L a b ga gb 200) (hr : InRow d L fx a ga n) (hv : valid L n) :
    ∀ i ∈ (outM L n).view.set, ((outM L n).view.writes (Elt F) f0 [⟨Rect.whole _, w⟩]) i = Cert.Spec.row 10 fx i := by
  intro i hi
  obtain ⟨y, -, rfl⟩ := Finset.mem_map.mp hi
  have hy : (y 0).val < 3200 := (y 0).isLt
  have hp : pos L n + (y 0).val < 1600000 := by unfold pos; omega
  have e1 : (outM L n).view.writes (Elt F) f0 [⟨Rect.whole _, w⟩] ((outM L n).view.emb y) = w y := by
    have h := View.read_writes_cons_emb (outM L n).view f0 (Rect.whole _) w [] y
    rw [Rect.emb_whole_apply] at h
    exact (cast_eq _ _).symm.trans ((View.read_apply _ _).symm.trans h)
  have e2 : (stg b).view.read (Elt F) gb y = b.view.read (Elt F) gb (ix1 (⟨(y 0).val, by omega⟩ : Fin 25600)) :=
    congrArg (b.view.read (Elt F) gb) (stg_emb y (by omega))
  have e3 : a.view.read (Elt F) ga (ix2 (0 : Fin 8) (⟨(y 0).val, hy⟩ : Fin 3200))
      = (inM L n).view.read (Elt F) fx (ix2 (0 : Fin 1) (⟨(y 0).val, hy⟩ : Fin 3200)) :=
    (congrArg (a.view.read (Elt F) ga) (row_emb ⟨(y 0).val, hy⟩).symm).trans (hr _)
  have e4 : (inM L n).view.read (Elt F) fx (ix2 (0 : Fin 1) (⟨(y 0).val, hy⟩ : Fin 3200))
      = fx (ix2 (10 : Fin 22) (⟨pos L n + (y 0).val, hp⟩ : Fin 1600000)) :=
    ((View.read_apply _ _).trans (cast_eq _ _)).trans (congrArg fx (in_emb L n ⟨(y 0).val, hy⟩ hp))
  have e5 : Cert.Spec.row 10 fx ((outM L n).view.emb y) = fx (ix2 (10 : Fin 22) (⟨pos L n + (y 0).val, hp⟩ : Fin 1600000)) :=
    (congrArg (Cert.Spec.row 10 fx) (out_emb L n y hp)).trans (Cert.Spec.row_apply 10 fx _)
  exact e1.trans ((hw y).trans (e2.trans ((hl _ hy (by omega)).trans (e3.trans (e4.trans e5.symm)))))

end Cert.Proof.TileVal10

end
-- ==== Proof.TileK10.lean ====
/-
  One vector subcore's task of copy kernel 10 (counting from 0), run symbolically: the two fetch slots and two write-out slots
  between trips of the main loop (what each transfer in flight will hand back, and what the staging buffers hold), the
  invariant of the main loop and of the two lane-copy loops, and the task's run — from the tile's pieces of row 10 of
  the transposed argument and of the result to the same pieces with the result holding the row's elements.
-/
import proofs.«206869_g37898791420194_cont_8to1_b_558_20_alg».proof.Proof.TileK10Defs
import proofs.«206869_g37898791420194_cont_8to1_b_558_20_alg».proof.Proof.TileVal10
noncomputable section

namespace Cert.Proof.TileK10

open Cert.KernelIdeal Cert.KernelIdeal.Gen Cert.Proof.TileVal10
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 22) (Elt F) ℕ UU ℕ
local notation "xtW" => (Memref.whole Cert.KernelIdeal.main_v0_scv : Memref Cert.KernelIdeal.sig Kind.scVector Space.hbm Cert.KernelIdeal.S22x1600000 EltTy.f32)
local notation "oW" => (Memref.whole Cert.KernelIdeal.main_v11_scv : Memref Cert.KernelIdeal.sig Kind.scVector Space.hbm Cert.KernelIdeal.S1600000 EltTy.f32)
local notation "a4" => (Memref.whole Cert.KernelIdeal.cc10_scratch0 : Memref Cert.KernelIdeal.sig Kind.scVector Space.vmem Cert.KernelIdeal.S8x3200 EltTy.f32)
local notation "a5" => (Memref.whole Cert.KernelIdeal.cc10_scratch1 : Memref Cert.KernelIdeal.sig Kind.scVector Space.vmem Cert.KernelIdeal.S8x3200 EltTy.f32)
local notation "a6" => (Memref.whole Cert.KernelIdeal.cc10_scratch2 : Memref Cert.KernelIdeal.sig Kind.scVector Space.vmem Cert.KernelIdeal.S25600 EltTy.f32)
local notation "a7" => (Memref.whole Cert.KernelIdeal.cc10_scratch3 : Memref Cert.KernelIdeal.sig Kind.scVector Space.vmem Cert.KernelIdeal.S25600 EltTy.f32)

variable [FloatOps F]

section Tile

variable (d : Dev nD) (L : grid10.Coords)
variable (O : CellTallies nD τ sig (HIx 22)) (W : Waits sig (HIx 22))
variable (fx : Buf (Elt F) ((xtW).view.loc (thr d L)))

/-- Piece `n` of the result at its final contents. -/
abbrev oqPiece (n : ℕ) : sProp 𝕄 := (outM L n).view.loc (thr d L) ↦[(outM L n).view.set]{fullShare} (Cert.Spec.row 10 fx)
theorem oQ_pos {n : ℕ} (v : valid L n) : oQ d L fx n = oqPiece d L fx n := if_pos v
theorem oQ_neg {n : ℕ} (v : ¬ valid L n) : oQ d L fx n = iprop(emp) := if_neg v

/-- A fetch slot, remembering that the staging row it will hand back holds the piece. -/
def inSlotV (a : Memref sig .scVector .vmem S8x3200 .f32) (sm : DmaSem sig) (n : ℕ) : sProp 𝕄 :=
  if valid L n then
    iprop(∃ g, ⌜InRow d L fx a g n⌝ ∗ Transfers.Flight countersEmb (thr d L) (SemLoc.dma sm) (default : HIx 22) NN
      iprop((a.view.loc (thr d L) ↦{fullShare} g) ∗ xtPiece d L fx n))
  else iprop((∃ g, a.view.loc (thr d L) ↦{fullShare} g) ∗ semVal (thr d L, SemLoc.dma sm) 0)

/-- A write-out slot: the piece in flight will come back holding the row's elements. -/
def outSlotV (a : Memref sig .scVector .vmem S25600 .f32) (sm : DmaSem sig) (m : ℕ) : sProp 𝕄 :=
  if 2 ≤ m ∧ valid L (m - 2) then
    iprop(∃ g, Transfers.Flight countersEmb (thr d L) (SemLoc.dma sm) (default : HIx 22) NN
        iprop(oqPiece d L fx (m - 2) ∗ ((stg a).view.loc (thr d L) ↦[(stg a).view.set]{fullShare} g))
      ∗ (a.view.loc (thr d L) ↦[Finset.univ \ (stg a).view.set]{fullShare} g))
  else iprop((∃ g, a.view.loc (thr d L) ↦{fullShare} g) ∗ semVal (thr d L, SemLoc.dma sm) 0)

theorem inSlotV_pos {a : Memref sig .scVector .vmem S8x3200 .f32} {sm : DmaSem sig} {n : ℕ} (v : valid L n) :
    inSlotV d L fx a sm n = iprop(∃ g, ⌜InRow d L fx a g n⌝ ∗ Transfers.Flight countersEmb (thr d L) (SemLoc.dma sm) (default : HIx 22) NN
      iprop((a.view.loc (thr d L) ↦{fullShare} g) ∗ xtPiece d L fx n)) := by unfold inSlotV; rw [if_pos v]
theorem inSlotV_neg {a : Memref sig .scVector .vmem S8x3200 .f32} {sm : DmaSem sig} {n : ℕ} (v : ¬ valid L n) :
    inSlotV d L fx a sm n = iprop((∃ g, a.view.loc (thr d L) ↦{fullShare} g) ∗ semVal (thr d L, SemLoc.dma sm) 0) := by
  unfold inSlotV; rw [if_neg v]
theorem outSlotV_pos {a : Memref sig .scVector .vmem S25600 .f32} {sm : DmaSem sig} {m : ℕ} (h : 2 ≤ m ∧ valid L (m - 2)) :
    outSlotV d L fx a sm m = iprop(∃ g, Transfers.Flight countersEmb (thr d L) (SemLoc.dma sm) (default : HIx 22) NN
        iprop(oqPiece d L fx (m - 2) ∗ ((stg a).view.loc (thr d L) ↦[(stg a).view.set]{fullShare} g))
      ∗ (a.view.loc (thr d L) ↦[Finset.univ \ (stg a).view.set]{fullShare} g)) := by unfold outSlotV; rw [if_pos h]
theorem outSlotV_neg {a : Memref sig .scVector .vmem S25600 .f32} {sm : DmaSem sig} {m : ℕ} (h : ¬ (2 ≤ m ∧ valid L (m - 2))) :
    outSlotV d L fx a sm m = iprop((∃ g, a.view.loc (thr d L) ↦{fullShare} g) ∗ semVal (thr d L, SemLoc.dma sm) 0) := by
  unfold outSlotV; rw [if_neg h]

/-- A fetch just issued: the staging row will hold what the transfer reads, which is the piece. -/
theorem fl_inV {off : Fin 2 → ℕ} {n : ℕ} (h : off = ![10, pos L n]) (p : ∀ a, off a + S1x3200.size a ≤ S22x1600000.size a) (v : valid L n)
    (a : Memref sig .scVector .vmem S8x3200 .f32) (sm : DmaSem sig) :
    (iprop(∃ (gold : Buf (Elt F) (a.view.loc (thr d L))) (w : S1x3200.Idx → Elt F .f32),
        ⌜∀ y, w y = ((xtW).slice (Rect.unit (s := S22x1600000) off S1x3200.size p) (fun _ => rfl)).view.read (Elt F) fx y⌝
        ∗ Transfers.Flight countersEmb (thr d L) (SemLoc.dma sm) (default : HIx 22) NN
          iprop((a.view.loc (thr d L) ↦{fullShare} a.view.writes (Elt F) gold [⟨rowRect, w⟩])
            ∗ (((xtW).slice (Rect.unit (s := S22x1600000) off S1x3200.size p) (fun _ => rfl)).view.loc (thr d L)
                ↦[((xtW).slice (Rect.unit (s := S22x1600000) off S1x3200.size p) (fun _ => rfl)).view.set]{fullShare} fx))) : sProp 𝕄)
      ⊢ inSlotV d L fx a sm n := by
  subst h
  rw [inSlotV_pos d L fx v]
  iintro ⟨%gold, %w, %hw, H⟩
  iexists _
  isplitr
  · ipureintro; exact inRow_fetch d L fx a gold w n hw
  · iexact H

set_option maxHeartbeats 4000000 in
/-- A write-out just issued from a flat staging buffer whose first 3200 elements are the staging row, itself piece
    `n` of the argument row: the piece of the result will hold the row's elements. -/
theorem fl_outV {off : Fin 1 → ℕ} {n : ℕ} (h : off = ![pos L n]) (p : ∀ a, off a + S3200.size a ≤ S1600000.size a) (v : valid L n)
    (ar : Memref sig .scVector .vmem S8x3200 .f32) (a : Memref sig .scVector .vmem S25600 .f32) (sm : DmaSem sig)
    (f0 : Buf (Elt F) ((oW).view.loc (thr d L))) (ga : Buf (Elt F) (ar.view.loc (thr d L))) (gb : Buf (Elt F) (a.view.loc (thr d L)))
    (hl : Lanes d L ar a ga gb 200) (hr : InRow d L fx ar ga n) :
    (iprop(∃ (w : S3200.Idx → Elt F .f32),
        ⌜∀ y, w y = (stg a).view.read (Elt F) gb y⌝
        ∗ Transfers.Flight countersEmb (thr d L) (SemLoc.dma sm) (default : HIx 22) NN
          iprop((((oW).slice (Rect.unit (s := S1600000) off S3200.size p) (fun _ => rfl)).view.loc (thr d L)
                ↦[((oW).slice (Rect.unit (s := S1600000) off S3200.size p) (fun _ => rfl)).view.set]{fullShare}
                  (((oW).slice (Rect.unit (s := S1600000) off S3200.size p) (fun _ => rfl)).view.writes (Elt F) f0 [⟨Rect.whole _, w⟩]))
            ∗ ((stg a).view.loc (thr d L) ↦[(stg a).view.set]{fullShare} gb))
        ∗ (a.view.loc (thr d L) ↦[Finset.univ \ (stg a).view.set]{fullShare} gb)) : sProp 𝕄)
      ⊢ outSlotV d L fx a sm (n + 2) := by
  subst h
  rw [outSlotV_pos d L fx (m := n + 2) ⟨by omega, by simpa using v⟩]
  iintro ⟨%w, %hw, H, R⟩
  have hD : (iprop(((outM L n).view.loc (thr d L) ↦[(outM L n).view.set]{fullShare} ((outM L n).view.writes (Elt F) f0 [⟨Rect.whole _, w⟩]))
          ∗ ((stg a).view.loc (thr d L) ↦[(stg a).view.set]{fullShare} gb)) : sProp 𝕄)
      ⊢ iprop(oqPiece d L fx (n + 2 - 2) ∗ ((stg a).view.loc (thr d L) ↦[(stg a).view.set]{fullShare} gb)) := by
    rw [Nat.add_sub_cancel]
    have e : (((outM L n).view.loc (thr d L) ↦[(outM L n).view.set]{fullShare} ((outM L n).view.writes (Elt F) f0 [⟨Rect.whole _, w⟩])) : sProp 𝕄)
        = oqPiece d L fx n := pointsTo_congr (out_written d L fx ar a n ga gb f0 w hw hl hr v)
    iintro ⟨H1, H2⟩
    isplitl [H1]
    · iapply (Entails.of_eq e); iexact H1
    · iexact H2
  iexists gb
  isplitl [H]
  · iapply (Transfers.Flight_mono countersEmb (thr d L) hD); iexact H
  · iexact R

/-- The result pieces outside the slots before trip `t`: those already written hold the row, the others some contents. -/
def oMix (t n : ℕ) : sProp 𝕄 := if n + 2 < 2 * t then oQ d L fx n else oP (F := F) d L n
theorem oMix_lt {t n : ℕ} (h : n + 2 < 2 * t) : oMix d L fx t n = oQ d L fx n := if_pos h
theorem oMix_ge {t n : ℕ} (h : ¬ n + 2 < 2 * t) : oMix d L fx t n = oP (F := F) d L n := if_neg h
theorem oMix_core (k : ℕ) : bigSep (oCore k) (oMix d L fx k) = bigSep (oCore k) (oMix d L fx (k + 1)) :=
  bigSep_congr fun n hn => by
    have hn' : n + 2 ≠ 2 * k ∧ n + 2 ≠ 2 * k + 1 ∧ n ≠ 2 * k ∧ n ≠ 2 * k + 1 := by
      simp only [oCore, Finset.mem_filter, Finset.mem_range] at hn; exact hn.2
    by_cases h : n + 2 < 2 * k
    · rw [oMix_lt d L fx h, oMix_lt d L fx (by omega)]
    · rw [oMix_ge d L fx h, oMix_ge d L fx (by omega)]
theorem oMix_zero : bigSep (oSet 0) (oMix d L fx 0) = bigSep (Finset.range 18) (oP (F := F) d L) := by
  rw [oSet_zero]; exact bigSep_congr fun n _ => oMix_ge d L fx (by omega)
theorem oMix_end : bigSep (oSet 8) (oMix d L fx 8) = bigSep (oSet 8) (oQ d L fx) :=
  bigSep_congr fun n hn => by
    have hn' : n < 18 ∧ n + 2 ≠ 16 ∧ n + 2 ≠ 17 := by simpa only [oSet, Finset.mem_filter, Finset.mem_range] using hn
    by_cases h : n + 2 < 2 * 8
    · exact oMix_lt d L fx h
    · rw [oMix_ge d L fx h, oP_neg (F := F) d L (by unfold valid; omega), oQ_neg d L fx (by unfold valid; omega)]

/-- The lane-copy loops: before trip `j` the first 16·j elements of the flat staging buffer are the staging row's. -/
def laneV0 (g4 : Buf (Elt F) ((a4).view.loc (thr d L))) (j : ℕ) (_ : PUnit) : sProp 𝕄 :=
  iprop(((a4).view.loc (thr d L) ↦{fullShare} g4) ∗ (∃ g, ((a6).view.loc (thr d L) ↦{fullShare} g) ∗ ⌜Lanes d L a4 a6 g4 g j⌝))
def laneV1 (g5 : Buf (Elt F) ((a5).view.loc (thr d L))) (j : ℕ) (_ : PUnit) : sProp 𝕄 :=
  iprop(((a5).view.loc (thr d L) ↦{fullShare} g5) ∗ (∃ g, ((a7).view.loc (thr d L) ↦{fullShare} g) ∗ ⌜Lanes d L a5 a7 g5 g j⌝))

def invV (t : ℕ) (_ : PUnit) : sProp 𝕄 :=
  iprop(Transfers.MayWaits (thr d L) (none : HIx 22) O
    ∗ (∃ W', ⌜∀ p ∈ W', p ∈ W ∨ p.2 = none⌝ ∗ owes (thr d L) O W')
    ∗ bigSep (xSet t) (xP d L fx) ∗ bigSep (oSet t) (oMix d L fx t)
    ∗ inSlotV d L fx a4 cc10_scratch4.sem (2 * t) ∗ outSlotV d L fx a6 cc10_scratch6.sem (2 * t)
    ∗ inSlotV d L fx a5 cc10_scratch5.sem (2 * t + 1) ∗ outSlotV d L fx a7 cc10_scratch7.sem (2 * t + 1))

/-- After the last trip nothing of the argument row is in a slot: the tile holds all its pieces. -/
theorem xRange_end : bigSep (xSet 8) (xP d L fx) ⊢ bigSep (Finset.range 18) (xP d L fx) := by
  rw [two_out (s := Finset.range 18) (a := 16) (b := 17) (by decide) (by decide) (by decide),
    show ((Finset.range 18).erase 16).erase 17 = xSet 8 by decide]
  iintro H
  isplitr; · iapply (Entails.of_eq (xP_neg d L fx (n := 16) (by unfold valid; omega)).symm); iempintro
  isplitr; · iapply (Entails.of_eq (xP_neg d L fx (n := 17) (by unfold valid; omega)).symm); iempintro
  iexact H
omit [FloatOps F] in
theorem oRange_end (Φ : ℕ → sProp 𝕄) : bigSep (Finset.range 18) Φ = iprop(Φ 14 ∗ Φ 15 ∗ bigSep (oSet 8) Φ) := by
  rw [two_out (s := Finset.range 18) (a := 14) (b := 15) (by decide) (by decide) (by decide),
    show ((Finset.range 18).erase 14).erase 15 = oSet 8 by decide]

/-- What the run starts from and ends with, beside an untouched rest `R`. -/
def runPre (R : sProp 𝕄) : sProp 𝕄 :=
    iprop(Transfers.MayWaits (thr d L) (none : HIx 22) O ∗ owes (thr d L) O W
        ∗ bigSep (Finset.range 18) (xP d L fx) ∗ bigSep (Finset.range 18) (oP (F := F) d L)
        ∗ (∃ g, (a4).view.loc (thr d L) ↦{fullShare} g) ∗ (∃ g, (a5).view.loc (thr d L) ↦{fullShare} g)
        ∗ (∃ g, (a6).view.loc (thr d L) ↦{fullShare} g) ∗ (∃ g, (a7).view.loc (thr d L) ↦{fullShare} g)
        ∗ semVal (thr d L, SemLoc.dma cc10_scratch4.sem) 0 ∗ semVal (thr d L, SemLoc.dma cc10_scratch5.sem) 0
        ∗ semVal (thr d L, SemLoc.dma cc10_scratch6.sem) 0 ∗ semVal (thr d L, SemLoc.dma cc10_scratch7.sem) 0 ∗ R)
def runPost (R : sProp 𝕄) : sProp 𝕄 :=
    iprop(bigSep (Finset.range 18) (xP d L fx) ∗ bigSep (Finset.range 18) (oQ d L fx)
            ∗ (∃ g, (a4).view.loc (thr d L) ↦{fullShare} g) ∗ (∃ g, (a5).view.loc (thr d L) ↦{fullShare} g)
            ∗ (∃ g, (a6).view.loc (thr d L) ↦{fullShare} g) ∗ (∃ g, (a7).view.loc (thr d L) ↦{fullShare} g)
            ∗ semVal (thr d L, SemLoc.dma cc10_scratch4.sem) 0 ∗ semVal (thr d L, SemLoc.dma cc10_scratch5.sem) 0
            ∗ semVal (thr d L, SemLoc.dma cc10_scratch6.sem) 0 ∗ semVal (thr d L, SemLoc.dma cc10_scratch7.sem) 0
            ∗ (∃ W', ⌜∀ p ∈ W', p ∈ W ∨ p.2 = none⌝ ∗ owes (thr d L) O W') ∗ R)

set_option maxHeartbeats 16000000 in
/-- The task's run: from its pieces of the argument row and of the result, the four staging buffers and the four
    semaphores at zero, to the same with every piece of the result holding the row's elements. -/
theorem tile_run (R : sProp 𝕄) :
    runPre d L O W fx R
      ⊢ wp frame (wpE (defs₀ (F := F)) 𝒱₀ (thr d L) none) Set.univ
          (cc10_sc_group L xtW (Memref.isWhole_whole _) oW (Memref.isWhole_whole _) a4 (Memref.isWhole_whole _) a5 (Memref.isWhole_whole _)
            a6 (Memref.isWhole_whole _) a7 (Memref.isWhole_whole _) cc10_scratch4 cc10_scratch5 cc10_scratch6 cc10_scratch7)
          fun _ => runPost d L O W fx R := by
  unfold runPre runPost
  have v0 : valid L 0 := Or.inl (by omega)
  have v1 : valid L 1 := Or.inl (by omega)
  have k10_h7 : k10_cond7 L = 1#1 := cond7_iff L
  iintro ⟨#Hmw, HO, HX, HOut, ⟨%g4, H4⟩, ⟨%g5, H5⟩, ⟨%g6, H6⟩, ⟨%g7, H7⟩, Hs8, Hs9, Hs10, Hs11, HR⟩
  ihave HX := (Entails.of_eq (xRange_split d L fx v0 v1)) $$ HX
  icases HX with ⟨X0, X1, HX⟩
  ihave X0 := (Entails.of_eq (in_congr d L (off_in0 L v0).symm (in_inb L _) (k10_off1_inb L 0) fx)) $$ X0
  ihave X1 := (Entails.of_eq (in_congr d L (off_in1 L v1).symm (in_inb L _) (k10_off1_inb L 1) fx)) $$ X1
  sl_unfold [cc10_sc_group]
  sl_exec
  ihave S8 := (fl_inV d L fx (off_in0 L v0) (k10_off1_inb L 0) v0 a4 cc10_scratch4.sem) $$ [Hs8]
  · iexists _, _
    isplitr
    rotate_left
    · iexact Hs8
    ipureintro; intro y; rfl
  ihave S9 := (fl_inV d L fx (off_in1 L v1) (k10_off1_inb L 1) v1 a5 cc10_scratch5.sem) $$ [Hs9]
  · iexists _, _
    isplitr
    rotate_left
    · iexact Hs9
    ipureintro; intro y; rfl
  sl_for (invV d L O W fx) $$ [HO HX HOut S8 S9 H6 H7 Hs10 Hs11]
  case region =>
    intro (k : Fin k10_t1_loop.trips) acc
    have hk : k.val < 8 := Nat.lt_of_lt_of_eq k.isLt trips1
    unfold invV
    iintro ⟨#Hmw, ⟨%W', %hW', HO⟩, HX, HOut, S8, S10, S9, S11⟩
    by_cases hk1 : 1 ≤ k.val
    · by_cases v3 : valid L (2 * k.val + 3)
      · -- the generic trip: both drains, both pieces worked, both next fetches issued
        have hk6 : k.val ≤ 6 := by unfold valid at v3; omega
        have k10_h1 : k10_cond1 k = 1#1 := (cond1_iff k).mpr (by omega)
        have k10_h2 : k10_cond2 L k = 1#1 := cond2_iff L k
        have k10_h3 : k10_cond3 L k = 1#1 := (cond3_iff L k).mpr (by omega)
        have k10_h4 : k10_cond4 k = 1#1 := (cond4_iff k).mpr (by omega)
        have k10_h5 : k10_cond5 L k = 1#1 := (cond5_iff L k).mpr (by first | (unfold valid big at *; omega) | (unfold big at *; omega) | omega)
        have k10_h6 : k10_cond6 L k = 1#1 := (cond6_iff L k).mpr (by first | (unfold valid big at *; omega) | (unfold big at *; omega) | omega)
        have v0 : valid L (2 * k.val) := by unfold valid big at *; omega
        have v1 : valid L (2 * k.val + 1) := by unfold valid big at *; omega
        have v2 : valid L (2 * k.val + 2) := by unfold valid big at *; omega
        have v3' : valid L (2 * k.val + 3) := by unfold valid big at *; omega
        have hm0 : 2 ≤ 2 * k.val ∧ valid L (2 * k.val - 2) := ⟨by omega, by unfold valid big at *; omega⟩
        have hm1 : 2 ≤ 2 * k.val + 1 ∧ valid L (2 * k.val + 1 - 2) := ⟨by omega, by unfold valid big at *; omega⟩
        ihave S8 := (Entails.of_eq (inSlotV_pos d L fx v0)) $$ S8
        icases S8 with ⟨%g4, %hin4, F8⟩
        ihave S9 := (Entails.of_eq (inSlotV_pos d L fx v1)) $$ S9
        icases S9 with ⟨%g5, %hin5, F9⟩
        ihave S10 := (Entails.of_eq (outSlotV_pos d L fx hm0)) $$ S10
        icases S10 with ⟨%g6, F10, R6⟩
        ihave S11 := (Entails.of_eq (outSlotV_pos d L fx hm1)) $$ S11
        icases S11 with ⟨%g7, F11, R7⟩
        ihave HX := (Entails.of_eq (xSet_out (xP d L fx) k.val hk)) $$ HX
        icases HX with ⟨X2, X3, HX⟩
        ihave X2 := (Entails.of_eq (xP_pos d L fx v2)) $$ X2
        ihave X2 := (Entails.of_eq (in_congr d L (off_6 L k v2).symm (in_inb L _) (k10_off6_inb L k k10_h3) fx)) $$ X2
        ihave X3 := (Entails.of_eq (xP_pos d L fx v3')) $$ X3
        ihave X3 := (Entails.of_eq (in_congr d L (off_11 L k v3').symm (in_inb L _) (k10_off11_inb L k k10_h6) fx)) $$ X3
        ihave HOut := (Entails.of_eq (oSet_out (oMix d L fx k.val) k.val hk)) $$ HOut
        icases HOut with ⟨Y0, Y1, HOut⟩
        ihave Y0 := (Entails.of_eq ((oMix_ge d L fx (t := k.val) (n := 2 * k.val) (by omega)).trans (oP_pos (F := F) d L v0))) $$ Y0
        icases Y0 with ⟨%f0, Y0⟩
        ihave Y0 := (Entails.of_eq (out_congr d L (off_5 L k v0).symm (out_inb L _) (k10_off5_inb L k k10_h2) f0)) $$ Y0
        ihave Y1 := (Entails.of_eq ((oMix_ge d L fx (t := k.val) (n := 2 * k.val + 1) (by omega)).trans (oP_pos (F := F) d L v1))) $$ Y1
        icases Y1 with ⟨%f1, Y1⟩
        ihave Y1 := (Entails.of_eq (out_congr d L (off_10 L k v1).symm (out_inb L _) (k10_off10_inb L k k10_h5) f1)) $$ Y1
        sl_exec
        sl_for (laneV0 d L g4) $$ [F8_dst R6]
        case region =>
          intro (j : Fin k10_t2_loop.trips) _
          unfold laneV0
          iintro ⟨HA, %g, HB, %hl⟩
          sl_exec
          sl_step
          isplitl [HA]; · iexact HA
          iexists _; isplitl [HB]; · iexact HB
          ipureintro; exact lanes_step d L a4 a6 g4 g j _ _ hl
        · unfold laneV0
          isplitl [F8_dst]; · iexact F8_dst
          iexists _; isplitl [R6]; · iexact R6
          ipureintro; exact lanes_zero d L a4 a6 g4 _
        iintro %_ HI
        unfold laneV0
        icases HI with ⟨H4, %g6', H6, %hl6⟩
        have hl6 : Lanes d L a4 a6 g4 g6' 200 := Eq.mp (congrArg (Lanes d L a4 a6 g4 g6') trips2) hl6
        sl_exec
        sl_for (laneV1 d L g5) $$ [F9_dst R7]
        case region =>
          intro (j : Fin k10_t3_loop.trips) _
          unfold laneV1
          iintro ⟨HA, %g, HB, %hl⟩
          sl_exec
          sl_step
          isplitl [HA]; · iexact HA
          iexists _; isplitl [HB]; · iexact HB
          ipureintro; exact lanes_step' d L a5 a7 g5 g j _ _ hl
        · unfold laneV1
          isplitl [F9_dst]; · iexact F9_dst
          iexists _; isplitl [R7]; · iexact R7
          ipureintro; exact lanes_zero d L a5 a7 g5 _
        iintro %_ HI
        unfold laneV1
        icases HI with ⟨H5, %g7', H7, %hl7⟩
        have hl7 : Lanes d L a5 a7 g5 g7' 200 := Eq.mp (congrArg (Lanes d L a5 a7 g5 g7') trips3) hl7
        sl_exec
        sl_step
        isplitr; · iexact Hmw
        isplitl [HO]
        · iexists _; isplitr
          rotate_left
          · iexact HO
          ipureintro; intro p hp
          rcases Finset.mem_insert.mp hp with rfl | hp
          · exact .inr rfl
          rcases Finset.mem_insert.mp hp with rfl | hp
          · exact .inr rfl
          rcases Finset.mem_insert.mp hp with rfl | hp
          · exact .inr rfl
          rcases Finset.mem_insert.mp hp with rfl | hp
          · exact .inr rfl
          exact hW' p hp
        isplitl [HX F8_src F9_src]
        · iapply (Entails.of_eq (xSet_in (xP d L fx) k.val hk).symm)
          isplitl [F8_src]; · iapply (Entails.of_eq (xP_pos d L fx v0).symm); iexact F8_src
          isplitl [F9_src]; · iapply (Entails.of_eq (xP_pos d L fx v1).symm); iexact F9_src
          iexact HX
        isplitl [HOut F10_dst F11_dst]
        · iapply (Entails.of_eq (oSet_in (oMix d L fx (k.val + 1)) k.val hk (by omega)).symm)
          isplitl [F10_dst]; · iapply (Entails.of_eq ((oMix_lt d L fx (t := k.val + 1) (n := 2 * k.val - 2) (by omega)).trans (oQ_pos d L fx hm0.2)).symm); iexact F10_dst
          isplitl [F11_dst]
          · iapply (Entails.of_eq ((oMix_lt d L fx (t := k.val + 1) (n := 2 * k.val - 1) (by omega)).trans (oQ_pos d L fx (n := 2 * k.val - 1) (by have := hm1.2; rwa [show 2 * k.val + 1 - 2 = 2 * k.val - 1 by omega] at this))).symm)
            iapply (Entails.of_eq (congrArg (oqPiece d L fx) (show 2 * k.val + 1 - 2 = 2 * k.val - 1 by omega))); iexact F11_dst
          iapply (Entails.of_eq (oMix_core d L fx k.val)); iexact HOut
        isplitl [F8]
        · iapply (Entails.of_eq (congrArg (inSlotV d L fx a4 cc10_scratch4.sem) (show 2 * k.val + 2 = 2 * (k.val + 1) by ring)))
          iapply (fl_inV d L fx (off_6 L k v2) (k10_off6_inb L k k10_h3) v2 a4 cc10_scratch4.sem); iexists _, _
          isplitr
          rotate_left
          · iexact F8
          ipureintro; intro y; rfl
        isplitl [F10 H6]
        · iapply (Entails.of_eq (congrArg (outSlotV d L fx a6 cc10_scratch6.sem) (show 2 * k.val + 2 = 2 * (k.val + 1) by ring)))
          iapply (fl_outV d L fx (off_5 L k v0) (k10_off5_inb L k k10_h2) v0 a4 a6 cc10_scratch6.sem f0 g4 g6' hl6 hin4); iexists _
          isplitr
          rotate_left
          · isplitl [F10]; · iexact F10
            iexact H6
          ipureintro; intro y; rfl
        isplitl [F9]
        · iapply (Entails.of_eq (congrArg (inSlotV d L fx a5 cc10_scratch5.sem) (show 2 * k.val + 3 = 2 * (k.val + 1) + 1 by ring)))
          iapply (fl_inV d L fx (off_11 L k v3') (k10_off11_inb L k k10_h6) v3' a5 cc10_scratch5.sem); iexists _, _
          isplitr
          rotate_left
          · iexact F9
          ipureintro; intro y; rfl
        · iapply (Entails.of_eq (congrArg (outSlotV d L fx a7 cc10_scratch7.sem) (show 2 * k.val + 1 + 2 = 2 * (k.val + 1) + 1 by ring)))
          iapply (fl_outV d L fx (off_10 L k v1) (k10_off10_inb L k k10_h5) v1 a5 a7 cc10_scratch7.sem f1 g5 g7' hl7 hin5); iexists _
          isplitr
          rotate_left
          · isplitl [F11]; · iexact F11
            iexact H7
          ipureintro; intro y; rfl
      · by_cases h6 : k.val = 6
        · have hb : ¬ big L := fun hb => v3 (Or.inr ⟨by omega, hb⟩)
          -- trip 6 of a tile with fifteen pieces: no sixteenth piece to fetch
          have k10_h1 : k10_cond1 k = 1#1 := (cond1_iff k).mpr (by omega)
          have k10_h2 : k10_cond2 L k = 1#1 := cond2_iff L k
          have k10_h3 : k10_cond3 L k = 1#1 := (cond3_iff L k).mpr (by omega)
          have k10_h4 : k10_cond4 k = 1#1 := (cond4_iff k).mpr (by omega)
          have k10_h5 : k10_cond5 L k = 1#1 := (cond5_iff L k).mpr (by first | (unfold valid big at *; omega) | (unfold big at *; omega) | omega)
          have k10_h6 : ¬ k10_cond6 L k = 1#1 := fun h => absurd ((cond6_iff L k).mp h) (by first | (unfold valid big at *; omega) | (unfold big at *; omega) | omega)
          have v0 : valid L (2 * k.val) := by unfold valid big at *; omega
          have v1 : valid L (2 * k.val + 1) := by unfold valid big at *; omega
          have v2 : valid L (2 * k.val + 2) := by unfold valid big at *; omega
          have v3' : ¬ valid L (2 * k.val + 3) := by unfold valid big at *; omega
          have hm0 : 2 ≤ 2 * k.val ∧ valid L (2 * k.val - 2) := ⟨by omega, by unfold valid big at *; omega⟩
          have hm1 : 2 ≤ 2 * k.val + 1 ∧ valid L (2 * k.val + 1 - 2) := ⟨by omega, by unfold valid big at *; omega⟩
          ihave S8 := (Entails.of_eq (inSlotV_pos d L fx v0)) $$ S8
          icases S8 with ⟨%g4, %hin4, F8⟩
          ihave S9 := (Entails.of_eq (inSlotV_pos d L fx v1)) $$ S9
          icases S9 with ⟨%g5, %hin5, F9⟩
          ihave S10 := (Entails.of_eq (outSlotV_pos d L fx hm0)) $$ S10
          icases S10 with ⟨%g6, F10, R6⟩
          ihave S11 := (Entails.of_eq (outSlotV_pos d L fx hm1)) $$ S11
          icases S11 with ⟨%g7, F11, R7⟩
          ihave HX := (Entails.of_eq (xSet_out (xP d L fx) k.val hk)) $$ HX
          icases HX with ⟨X2, -, HX⟩
          ihave X2 := (Entails.of_eq (xP_pos d L fx v2)) $$ X2
          ihave X2 := (Entails.of_eq (in_congr d L (off_6 L k v2).symm (in_inb L _) (k10_off6_inb L k k10_h3) fx)) $$ X2
          ihave HOut := (Entails.of_eq (oSet_out (oMix d L fx k.val) k.val hk)) $$ HOut
          icases HOut with ⟨Y0, Y1, HOut⟩
          ihave Y0 := (Entails.of_eq ((oMix_ge d L fx (t := k.val) (n := 2 * k.val) (by omega)).trans (oP_pos (F := F) d L v0))) $$ Y0
          icases Y0 with ⟨%f0, Y0⟩
          ihave Y0 := (Entails.of_eq (out_congr d L (off_5 L k v0).symm (out_inb L _) (k10_off5_inb L k k10_h2) f0)) $$ Y0
          ihave Y1 := (Entails.of_eq ((oMix_ge d L fx (t := k.val) (n := 2 * k.val + 1) (by omega)).trans (oP_pos (F := F) d L v1))) $$ Y1
          icases Y1 with ⟨%f1, Y1⟩
          ihave Y1 := (Entails.of_eq (out_congr d L (off_10 L k v1).symm (out_inb L _) (k10_off10_inb L k k10_h5) f1)) $$ Y1
          sl_exec
          sl_for (laneV0 d L g4) $$ [F8_dst R6]
          case region =>
            intro (j : Fin k10_t2_loop.trips) _
            unfold laneV0
            iintro ⟨HA, %g, HB, %hl⟩
            sl_exec
            sl_step
            isplitl [HA]; · iexact HA
            iexists _; isplitl [HB]; · iexact HB
            ipureintro; exact lanes_step d L a4 a6 g4 g j _ _ hl
          · unfold laneV0
            isplitl [F8_dst]; · iexact F8_dst
            iexists _; isplitl [R6]; · iexact R6
            ipureintro; exact lanes_zero d L a4 a6 g4 _
          iintro %_ HI
          unfold laneV0
          icases HI with ⟨H4, %g6', H6, %hl6⟩
          have hl6 : Lanes d L a4 a6 g4 g6' 200 := Eq.mp (congrArg (Lanes d L a4 a6 g4 g6') trips2) hl6
          sl_exec
          sl_for (laneV1 d L g5) $$ [F9_dst R7]
          case region =>
            intro (j : Fin k10_t3_loop.trips) _
            unfold laneV1
            iintro ⟨HA, %g, HB, %hl⟩
            sl_exec
            sl_step
            isplitl [HA]; · iexact HA
            iexists _; isplitl [HB]; · iexact HB
            ipureintro; exact lanes_step' d L a5 a7 g5 g j _ _ hl
          · unfold laneV1
            isplitl [F9_dst]; · iexact F9_dst
            iexists _; isplitl [R7]; · iexact R7
            ipureintro; exact lanes_zero d L a5 a7 g5 _
          iintro %_ HI
          unfold laneV1
          icases HI with ⟨H5, %g7', H7, %hl7⟩
          have hl7 : Lanes d L a5 a7 g5 g7' 200 := Eq.mp (congrArg (Lanes d L a5 a7 g5 g7') trips3) hl7
          sl_exec
          sl_step
          isplitr; · iexact Hmw
          isplitl [HO]
          · iexists _; isplitr
            rotate_left
            · iexact HO
            ipureintro; intro p hp
            rcases Finset.mem_insert.mp hp with rfl | hp
            · exact .inr rfl
            rcases Finset.mem_insert.mp hp with rfl | hp
            · exact .inr rfl
            rcases Finset.mem_insert.mp hp with rfl | hp
            · exact .inr rfl
            rcases Finset.mem_insert.mp hp with rfl | hp
            · exact .inr rfl
            exact hW' p hp
          isplitl [HX F8_src F9_src]
          · iapply (Entails.of_eq (xSet_in (xP d L fx) k.val hk).symm)
            isplitl [F8_src]; · iapply (Entails.of_eq (xP_pos d L fx v0).symm); iexact F8_src
            isplitl [F9_src]; · iapply (Entails.of_eq (xP_pos d L fx v1).symm); iexact F9_src
            iexact HX
          isplitl [HOut F10_dst F11_dst]
          · iapply (Entails.of_eq (oSet_in (oMix d L fx (k.val + 1)) k.val hk (by omega)).symm)
            isplitl [F10_dst]; · iapply (Entails.of_eq ((oMix_lt d L fx (t := k.val + 1) (n := 2 * k.val - 2) (by omega)).trans (oQ_pos d L fx hm0.2)).symm); iexact F10_dst
            isplitl [F11_dst]
            · iapply (Entails.of_eq ((oMix_lt d L fx (t := k.val + 1) (n := 2 * k.val - 1) (by omega)).trans (oQ_pos d L fx (n := 2 * k.val - 1) (by have := hm1.2; rwa [show 2 * k.val + 1 - 2 = 2 * k.val - 1 by omega] at this))).symm)
              iapply (Entails.of_eq (congrArg (oqPiece d L fx) (show 2 * k.val + 1 - 2 = 2 * k.val - 1 by omega))); iexact F11_dst
            iapply (Entails.of_eq (oMix_core d L fx k.val)); iexact HOut
          isplitl [F8]
          · iapply (Entails.of_eq (congrArg (inSlotV d L fx a4 cc10_scratch4.sem) (show 2 * k.val + 2 = 2 * (k.val + 1) by ring)))
            iapply (fl_inV d L fx (off_6 L k v2) (k10_off6_inb L k k10_h3) v2 a4 cc10_scratch4.sem); iexists _, _
            isplitr
            rotate_left
            · iexact F8
            ipureintro; intro y; rfl
          isplitl [F10 H6]
          · iapply (Entails.of_eq (congrArg (outSlotV d L fx a6 cc10_scratch6.sem) (show 2 * k.val + 2 = 2 * (k.val + 1) by ring)))
            iapply (fl_outV d L fx (off_5 L k v0) (k10_off5_inb L k k10_h2) v0 a4 a6 cc10_scratch6.sem f0 g4 g6' hl6 hin4); iexists _
            isplitr
            rotate_left
            · isplitl [F10]; · iexact F10
              iexact H6
            ipureintro; intro y; rfl
          isplitl [H5 F9]
          · iapply (Entails.of_eq (congrArg (inSlotV d L fx a5 cc10_scratch5.sem) (show 2 * k.val + 3 = 2 * (k.val + 1) + 1 by ring)))
            iapply (Entails.of_eq (inSlotV_neg d L fx v3').symm)
            isplitl [H5]; · iexists _; iexact H5
            iexact F9
          · iapply (Entails.of_eq (congrArg (outSlotV d L fx a7 cc10_scratch7.sem) (show 2 * k.val + 1 + 2 = 2 * (k.val + 1) + 1 by ring)))
            iapply (fl_outV d L fx (off_10 L k v1) (k10_off10_inb L k k10_h5) v1 a5 a7 cc10_scratch7.sem f1 g5 g7' hl7 hin5); iexists _
            isplitr
            rotate_left
            · isplitl [F11]; · iexact F11
              iexact H7
            ipureintro; intro y; rfl
        · have h7 : k.val = 7 := by unfold valid at v3; omega
          by_cases hb : big L
          · -- the last trip of a tile with sixteen pieces: nothing more to fetch
            have k10_h1 : k10_cond1 k = 1#1 := (cond1_iff k).mpr (by omega)
            have k10_h2 : k10_cond2 L k = 1#1 := cond2_iff L k
            have k10_h3 : ¬ k10_cond3 L k = 1#1 := fun h => absurd ((cond3_iff L k).mp h) (by omega)
            have k10_h4 : k10_cond4 k = 1#1 := (cond4_iff k).mpr (by omega)
            have k10_h5 : k10_cond5 L k = 1#1 := (cond5_iff L k).mpr (by first | (unfold valid big at *; omega) | (unfold big at *; omega) | omega)
            have k10_h6 : ¬ k10_cond6 L k = 1#1 := fun h => absurd ((cond6_iff L k).mp h) (by first | (unfold valid big at *; omega) | (unfold big at *; omega) | omega)
            have v0 : valid L (2 * k.val) := by unfold valid big at *; omega
            have v1 : valid L (2 * k.val + 1) := by unfold valid big at *; omega
            have v2 : ¬ valid L (2 * k.val + 2) := by unfold valid big at *; omega
            have v3' : ¬ valid L (2 * k.val + 3) := by unfold valid big at *; omega
            have hm0 : 2 ≤ 2 * k.val ∧ valid L (2 * k.val - 2) := ⟨by omega, by unfold valid big at *; omega⟩
            have hm1 : 2 ≤ 2 * k.val + 1 ∧ valid L (2 * k.val + 1 - 2) := ⟨by omega, by unfold valid big at *; omega⟩
            ihave S8 := (Entails.of_eq (inSlotV_pos d L fx v0)) $$ S8
            icases S8 with ⟨%g4, %hin4, F8⟩
            ihave S9 := (Entails.of_eq (inSlotV_pos d L fx v1)) $$ S9
            icases S9 with ⟨%g5, %hin5, F9⟩
            ihave S10 := (Entails.of_eq (outSlotV_pos d L fx hm0)) $$ S10
            icases S10 with ⟨%g6, F10, R6⟩
            ihave S11 := (Entails.of_eq (outSlotV_pos d L fx hm1)) $$ S11
            icases S11 with ⟨%g7, F11, R7⟩
            ihave HX := (Entails.of_eq (xSet_out (xP d L fx) k.val hk)) $$ HX
            icases HX with ⟨-, -, HX⟩
            ihave HOut := (Entails.of_eq (oSet_out (oMix d L fx k.val) k.val hk)) $$ HOut
            icases HOut with ⟨Y0, Y1, HOut⟩
            ihave Y0 := (Entails.of_eq ((oMix_ge d L fx (t := k.val) (n := 2 * k.val) (by omega)).trans (oP_pos (F := F) d L v0))) $$ Y0
            icases Y0 with ⟨%f0, Y0⟩
            ihave Y0 := (Entails.of_eq (out_congr d L (off_5 L k v0).symm (out_inb L _) (k10_off5_inb L k k10_h2) f0)) $$ Y0
            ihave Y1 := (Entails.of_eq ((oMix_ge d L fx (t := k.val) (n := 2 * k.val + 1) (by omega)).trans (oP_pos (F := F) d L v1))) $$ Y1
            icases Y1 with ⟨%f1, Y1⟩
            ihave Y1 := (Entails.of_eq (out_congr d L (off_10 L k v1).symm (out_inb L _) (k10_off10_inb L k k10_h5) f1)) $$ Y1
            sl_exec
            sl_for (laneV0 d L g4) $$ [F8_dst R6]
            case region =>
              intro (j : Fin k10_t2_loop.trips) _
              unfold laneV0
              iintro ⟨HA, %g, HB, %hl⟩
              sl_exec
              sl_step
              isplitl [HA]; · iexact HA
              iexists _; isplitl [HB]; · iexact HB
              ipureintro; exact lanes_step d L a4 a6 g4 g j _ _ hl
            · unfold laneV0
              isplitl [F8_dst]; · iexact F8_dst
              iexists _; isplitl [R6]; · iexact R6
              ipureintro; exact lanes_zero d L a4 a6 g4 _
            iintro %_ HI
            unfold laneV0
            icases HI with ⟨H4, %g6', H6, %hl6⟩
            have hl6 : Lanes d L a4 a6 g4 g6' 200 := Eq.mp (congrArg (Lanes d L a4 a6 g4 g6') trips2) hl6
            sl_exec
            sl_for (laneV1 d L g5) $$ [F9_dst R7]
            case region =>
              intro (j : Fin k10_t3_loop.trips) _
              unfold laneV1
              iintro ⟨HA, %g, HB, %hl⟩
              sl_exec
              sl_step
              isplitl [HA]; · iexact HA
              iexists _; isplitl [HB]; · iexact HB
              ipureintro; exact lanes_step' d L a5 a7 g5 g j _ _ hl
            · unfold laneV1
              isplitl [F9_dst]; · iexact F9_dst
              iexists _; isplitl [R7]; · iexact R7
              ipureintro; exact lanes_zero d L a5 a7 g5 _
            iintro %_ HI
            unfold laneV1
            icases HI with ⟨H5, %g7', H7, %hl7⟩
            have hl7 : Lanes d L a5 a7 g5 g7' 200 := Eq.mp (congrArg (Lanes d L a5 a7 g5 g7') trips3) hl7
            sl_exec
            sl_step
            isplitr; · iexact Hmw
            isplitl [HO]
            · iexists _; isplitr
              rotate_left
              · iexact HO
              ipureintro; intro p hp
              rcases Finset.mem_insert.mp hp with rfl | hp
              · exact .inr rfl
              rcases Finset.mem_insert.mp hp with rfl | hp
              · exact .inr rfl
              rcases Finset.mem_insert.mp hp with rfl | hp
              · exact .inr rfl
              rcases Finset.mem_insert.mp hp with rfl | hp
              · exact .inr rfl
              exact hW' p hp
            isplitl [HX F8_src F9_src]
            · iapply (Entails.of_eq (xSet_in (xP d L fx) k.val hk).symm)
              isplitl [F8_src]; · iapply (Entails.of_eq (xP_pos d L fx v0).symm); iexact F8_src
              isplitl [F9_src]; · iapply (Entails.of_eq (xP_pos d L fx v1).symm); iexact F9_src
              iexact HX
            isplitl [HOut F10_dst F11_dst]
            · iapply (Entails.of_eq (oSet_in (oMix d L fx (k.val + 1)) k.val hk (by omega)).symm)
              isplitl [F10_dst]; · iapply (Entails.of_eq ((oMix_lt d L fx (t := k.val + 1) (n := 2 * k.val - 2) (by omega)).trans (oQ_pos d L fx hm0.2)).symm); iexact F10_dst
              isplitl [F11_dst]
              · iapply (Entails.of_eq ((oMix_lt d L fx (t := k.val + 1) (n := 2 * k.val - 1) (by omega)).trans (oQ_pos d L fx (n := 2 * k.val - 1) (by have := hm1.2; rwa [show 2 * k.val + 1 - 2 = 2 * k.val - 1 by omega] at this))).symm)
                iapply (Entails.of_eq (congrArg (oqPiece d L fx) (show 2 * k.val + 1 - 2 = 2 * k.val - 1 by omega))); iexact F11_dst
              iapply (Entails.of_eq (oMix_core d L fx k.val)); iexact HOut
            isplitl [H4 F8]
            · iapply (Entails.of_eq (congrArg (inSlotV d L fx a4 cc10_scratch4.sem) (show 2 * k.val + 2 = 2 * (k.val + 1) by ring)))
              iapply (Entails.of_eq (inSlotV_neg d L fx v2).symm)
              isplitl [H4]; · iexists _; iexact H4
              iexact F8
            isplitl [F10 H6]
            · iapply (Entails.of_eq (congrArg (outSlotV d L fx a6 cc10_scratch6.sem) (show 2 * k.val + 2 = 2 * (k.val + 1) by ring)))
              iapply (fl_outV d L fx (off_5 L k v0) (k10_off5_inb L k k10_h2) v0 a4 a6 cc10_scratch6.sem f0 g4 g6' hl6 hin4); iexists _
              isplitr
              rotate_left
              · isplitl [F10]; · iexact F10
                iexact H6
              ipureintro; intro y; rfl
            isplitl [H5 F9]
            · iapply (Entails.of_eq (congrArg (inSlotV d L fx a5 cc10_scratch5.sem) (show 2 * k.val + 3 = 2 * (k.val + 1) + 1 by ring)))
              iapply (Entails.of_eq (inSlotV_neg d L fx v3').symm)
              isplitl [H5]; · iexists _; iexact H5
              iexact F9
            · iapply (Entails.of_eq (congrArg (outSlotV d L fx a7 cc10_scratch7.sem) (show 2 * k.val + 1 + 2 = 2 * (k.val + 1) + 1 by ring)))
              iapply (fl_outV d L fx (off_10 L k v1) (k10_off10_inb L k k10_h5) v1 a5 a7 cc10_scratch7.sem f1 g5 g7' hl7 hin5); iexists _
              isplitr
              rotate_left
              · isplitl [F11]; · iexact F11
                iexact H7
              ipureintro; intro y; rfl
          · -- the last trip of a tile with fifteen pieces: the second slot only drains
            have k10_h1 : k10_cond1 k = 1#1 := (cond1_iff k).mpr (by omega)
            have k10_h2 : k10_cond2 L k = 1#1 := cond2_iff L k
            have k10_h3 : ¬ k10_cond3 L k = 1#1 := fun h => absurd ((cond3_iff L k).mp h) (by omega)
            have k10_h4 : k10_cond4 k = 1#1 := (cond4_iff k).mpr (by omega)
            have k10_h5 : ¬ k10_cond5 L k = 1#1 := fun h => absurd ((cond5_iff L k).mp h) (by first | (unfold valid big at *; omega) | (unfold big at *; omega) | omega)
            have k10_h6 : ¬ k10_cond6 L k = 1#1 := fun h => absurd ((cond6_iff L k).mp h) (by first | (unfold valid big at *; omega) | (unfold big at *; omega) | omega)
            have v0 : valid L (2 * k.val) := by unfold valid big at *; omega
            have v1 : ¬ valid L (2 * k.val + 1) := by unfold valid big at *; omega
            have v2 : ¬ valid L (2 * k.val + 2) := by unfold valid big at *; omega
            have v3' : ¬ valid L (2 * k.val + 3) := by unfold valid big at *; omega
            have hm0 : 2 ≤ 2 * k.val ∧ valid L (2 * k.val - 2) := ⟨by omega, by unfold valid big at *; omega⟩
            have hm1 : 2 ≤ 2 * k.val + 1 ∧ valid L (2 * k.val + 1 - 2) := ⟨by omega, by unfold valid big at *; omega⟩
            ihave S8 := (Entails.of_eq (inSlotV_pos d L fx v0)) $$ S8
            icases S8 with ⟨%g4, %hin4, F8⟩
            ihave S9 := (Entails.of_eq (inSlotV_neg d L fx v1)) $$ S9
            icases S9 with ⟨⟨%g5, H5⟩, F9⟩
            ihave S10 := (Entails.of_eq (outSlotV_pos d L fx hm0)) $$ S10
            icases S10 with ⟨%g6, F10, R6⟩
            ihave S11 := (Entails.of_eq (outSlotV_pos d L fx hm1)) $$ S11
            icases S11 with ⟨%g7, F11, R7⟩
            ihave HX := (Entails.of_eq (xSet_out (xP d L fx) k.val hk)) $$ HX
            icases HX with ⟨-, -, HX⟩
            ihave HOut := (Entails.of_eq (oSet_out (oMix d L fx k.val) k.val hk)) $$ HOut
            icases HOut with ⟨Y0, -, HOut⟩
            ihave Y0 := (Entails.of_eq ((oMix_ge d L fx (t := k.val) (n := 2 * k.val) (by omega)).trans (oP_pos (F := F) d L v0))) $$ Y0
            icases Y0 with ⟨%f0, Y0⟩
            ihave Y0 := (Entails.of_eq (out_congr d L (off_5 L k v0).symm (out_inb L _) (k10_off5_inb L k k10_h2) f0)) $$ Y0
            sl_exec
            sl_for (laneV0 d L g4) $$ [F8_dst R6]
            case region =>
              intro (j : Fin k10_t2_loop.trips) _
              unfold laneV0
              iintro ⟨HA, %g, HB, %hl⟩
              sl_exec
              sl_step
              isplitl [HA]; · iexact HA
              iexists _; isplitl [HB]; · iexact HB
              ipureintro; exact lanes_step d L a4 a6 g4 g j _ _ hl
            · unfold laneV0
              isplitl [F8_dst]; · iexact F8_dst
              iexists _; isplitl [R6]; · iexact R6
              ipureintro; exact lanes_zero d L a4 a6 g4 _
            iintro %_ HI
            unfold laneV0
            icases HI with ⟨H4, %g6', H6, %hl6⟩
            have hl6 : Lanes d L a4 a6 g4 g6' 200 := Eq.mp (congrArg (Lanes d L a4 a6 g4 g6') trips2) hl6
            sl_exec
            sl_step
            isplitr; · iexact Hmw
            isplitl [HO]
            · iexists _; isplitr
              rotate_left
              · iexact HO
              ipureintro; intro p hp
              rcases Finset.mem_insert.mp hp with rfl | hp
              · exact .inr rfl
              rcases Finset.mem_insert.mp hp with rfl | hp
              · exact .inr rfl
              rcases Finset.mem_insert.mp hp with rfl | hp
              · exact .inr rfl
              exact hW' p hp
            isplitl [HX F8_src]
            · iapply (Entails.of_eq (xSet_in (xP d L fx) k.val hk).symm)
              isplitl [F8_src]; · iapply (Entails.of_eq (xP_pos d L fx v0).symm); iexact F8_src
              isplitr; · iapply (Entails.of_eq (xP_neg d L fx v1).symm); iempintro
              iexact HX
            isplitl [HOut F10_dst F11_dst]
            · iapply (Entails.of_eq (oSet_in (oMix d L fx (k.val + 1)) k.val hk (by omega)).symm)
              isplitl [F10_dst]; · iapply (Entails.of_eq ((oMix_lt d L fx (t := k.val + 1) (n := 2 * k.val - 2) (by omega)).trans (oQ_pos d L fx hm0.2)).symm); iexact F10_dst
              isplitl [F11_dst]
              · iapply (Entails.of_eq ((oMix_lt d L fx (t := k.val + 1) (n := 2 * k.val - 1) (by omega)).trans (oQ_pos d L fx (n := 2 * k.val - 1) (by have := hm1.2; rwa [show 2 * k.val + 1 - 2 = 2 * k.val - 1 by omega] at this))).symm)
                iapply (Entails.of_eq (congrArg (oqPiece d L fx) (show 2 * k.val + 1 - 2 = 2 * k.val - 1 by omega))); iexact F11_dst
              iapply (Entails.of_eq (oMix_core d L fx k.val)); iexact HOut
            isplitl [H4 F8]
            · iapply (Entails.of_eq (congrArg (inSlotV d L fx a4 cc10_scratch4.sem) (show 2 * k.val + 2 = 2 * (k.val + 1) by ring)))
              iapply (Entails.of_eq (inSlotV_neg d L fx v2).symm)
              isplitl [H4]; · iexists _; iexact H4
              iexact F8
            isplitl [F10 H6]
            · iapply (Entails.of_eq (congrArg (outSlotV d L fx a6 cc10_scratch6.sem) (show 2 * k.val + 2 = 2 * (k.val + 1) by ring)))
              iapply (fl_outV d L fx (off_5 L k v0) (k10_off5_inb L k k10_h2) v0 a4 a6 cc10_scratch6.sem f0 g4 g6' hl6 hin4); iexists _
              isplitr
              rotate_left
              · isplitl [F10]; · iexact F10
                iexact H6
              ipureintro; intro y; rfl
            isplitl [H5 F9]
            · iapply (Entails.of_eq (congrArg (inSlotV d L fx a5 cc10_scratch5.sem) (show 2 * k.val + 3 = 2 * (k.val + 1) + 1 by ring)))
              iapply (Entails.of_eq (inSlotV_neg d L fx v3').symm)
              isplitl [H5]; · iexists _; iexact H5
              iexact F9
            · iapply (Entails.of_eq (outSlotV_neg d L fx (m := 2 * (k.val + 1) + 1) (by intro h; apply v1; have := h.2; rwa [show 2 * (k.val + 1) + 1 - 2 = 2 * k.val + 1 by omega] at this)).symm)
              isplitl [R7]; · iexists _; iexact R7
              iexact F11
    · have hk0 : k.val = 0 := by omega
      -- the first trip: nothing to drain
      have k10_h1 : ¬ k10_cond1 k = 1#1 := fun h => absurd ((cond1_iff k).mp h) (by omega)
      have k10_h2 : k10_cond2 L k = 1#1 := cond2_iff L k
      have k10_h3 : k10_cond3 L k = 1#1 := (cond3_iff L k).mpr (by omega)
      have k10_h4 : ¬ k10_cond4 k = 1#1 := fun h => absurd ((cond4_iff k).mp h) (by omega)
      have k10_h5 : k10_cond5 L k = 1#1 := (cond5_iff L k).mpr (by first | (unfold valid big at *; omega) | (unfold big at *; omega) | omega)
      have k10_h6 : k10_cond6 L k = 1#1 := (cond6_iff L k).mpr (by first | (unfold valid big at *; omega) | (unfold big at *; omega) | omega)
      have v0 : valid L (2 * k.val) := by unfold valid big at *; omega
      have v1 : valid L (2 * k.val + 1) := by unfold valid big at *; omega
      have v2 : valid L (2 * k.val + 2) := by unfold valid big at *; omega
      have v3' : valid L (2 * k.val + 3) := by unfold valid big at *; omega
      have hm0 : ¬ (2 ≤ 2 * k.val ∧ valid L (2 * k.val - 2)) := by omega
      have hm1 : ¬ (2 ≤ 2 * k.val + 1 ∧ valid L (2 * k.val + 1 - 2)) := by omega
      ihave S8 := (Entails.of_eq (inSlotV_pos d L fx v0)) $$ S8
      icases S8 with ⟨%g4, %hin4, F8⟩
      ihave S9 := (Entails.of_eq (inSlotV_pos d L fx v1)) $$ S9
      icases S9 with ⟨%g5, %hin5, F9⟩
      ihave S10 := (Entails.of_eq (outSlotV_neg d L fx hm0)) $$ S10
      icases S10 with ⟨⟨%g6, R6⟩, F10⟩
      ihave S11 := (Entails.of_eq (outSlotV_neg d L fx hm1)) $$ S11
      icases S11 with ⟨⟨%g7, R7⟩, F11⟩
      ihave HX := (Entails.of_eq (xSet_out (xP d L fx) k.val hk)) $$ HX
      icases HX with ⟨X2, X3, HX⟩
      ihave X2 := (Entails.of_eq (xP_pos d L fx v2)) $$ X2
      ihave X2 := (Entails.of_eq (in_congr d L (off_6 L k v2).symm (in_inb L _) (k10_off6_inb L k k10_h3) fx)) $$ X2
      ihave X3 := (Entails.of_eq (xP_pos d L fx v3')) $$ X3
      ihave X3 := (Entails.of_eq (in_congr d L (off_11 L k v3').symm (in_inb L _) (k10_off11_inb L k k10_h6) fx)) $$ X3
      ihave HOut := (Entails.of_eq (oSet_out (oMix d L fx k.val) k.val hk)) $$ HOut
      icases HOut with ⟨Y0, Y1, HOut⟩
      ihave Y0 := (Entails.of_eq ((oMix_ge d L fx (t := k.val) (n := 2 * k.val) (by omega)).trans (oP_pos (F := F) d L v0))) $$ Y0
      icases Y0 with ⟨%f0, Y0⟩
      ihave Y0 := (Entails.of_eq (out_congr d L (off_5 L k v0).symm (out_inb L _) (k10_off5_inb L k k10_h2) f0)) $$ Y0
      ihave Y1 := (Entails.of_eq ((oMix_ge d L fx (t := k.val) (n := 2 * k.val + 1) (by omega)).trans (oP_pos (F := F) d L v1))) $$ Y1
      icases Y1 with ⟨%f1, Y1⟩
      ihave Y1 := (Entails.of_eq (out_congr d L (off_10 L k v1).symm (out_inb L _) (k10_off10_inb L k k10_h5) f1)) $$ Y1
      sl_exec
      sl_for (laneV0 d L g4) $$ [F8_dst R6]
      case region =>
        intro (j : Fin k10_t2_loop.trips) _
        unfold laneV0
        iintro ⟨HA, %g, HB, %hl⟩
        sl_exec
        sl_step
        isplitl [HA]; · iexact HA
        iexists _; isplitl [HB]; · iexact HB
        ipureintro; exact lanes_step d L a4 a6 g4 g j _ _ hl
      · unfold laneV0
        isplitl [F8_dst]; · iexact F8_dst
        iexists _; isplitl [R6]; · iexact R6
        ipureintro; exact lanes_zero d L a4 a6 g4 _
      iintro %_ HI
      unfold laneV0
      icases HI with ⟨H4, %g6', H6, %hl6⟩
      have hl6 : Lanes d L a4 a6 g4 g6' 200 := Eq.mp (congrArg (Lanes d L a4 a6 g4 g6') trips2) hl6
      sl_exec
      sl_for (laneV1 d L g5) $$ [F9_dst R7]
      case region =>
        intro (j : Fin k10_t3_loop.trips) _
        unfold laneV1
        iintro ⟨HA, %g, HB, %hl⟩
        sl_exec
        sl_step
        isplitl [HA]; · iexact HA
        iexists _; isplitl [HB]; · iexact HB
        ipureintro; exact lanes_step' d L a5 a7 g5 g j _ _ hl
      · unfold laneV1
        isplitl [F9_dst]; · iexact F9_dst
        iexists _; isplitl [R7]; · iexact R7
        ipureintro; exact lanes_zero d L a5 a7 g5 _
      iintro %_ HI
      unfold laneV1
      icases HI with ⟨H5, %g7', H7, %hl7⟩
      have hl7 : Lanes d L a5 a7 g5 g7' 200 := Eq.mp (congrArg (Lanes d L a5 a7 g5 g7') trips3) hl7
      sl_exec
      sl_step
      isplitr; · iexact Hmw
      isplitl [HO]
      · iexists _; isplitr
        rotate_left
        · iexact HO
        ipureintro; intro p hp
        rcases Finset.mem_insert.mp hp with rfl | hp
        · exact .inr rfl
        rcases Finset.mem_insert.mp hp with rfl | hp
        · exact .inr rfl
        exact hW' p hp
      isplitl [HX F8_src F9_src]
      · iapply (Entails.of_eq (xSet_in (xP d L fx) k.val hk).symm)
        isplitl [F8_src]; · iapply (Entails.of_eq (xP_pos d L fx v0).symm); iexact F8_src
        isplitl [F9_src]; · iapply (Entails.of_eq (xP_pos d L fx v1).symm); iexact F9_src
        iexact HX
      isplitl [HOut]
      · iapply (Entails.of_eq (congrArg (fun s => bigSep s (oMix d L fx (k.val + 1))) (show oCore k.val = oSet (k.val + 1) by rw [hk0]; decide)))
        iapply (Entails.of_eq (oMix_core d L fx k.val)); iexact HOut
      isplitl [F8]
      · iapply (Entails.of_eq (congrArg (inSlotV d L fx a4 cc10_scratch4.sem) (show 2 * k.val + 2 = 2 * (k.val + 1) by ring)))
        iapply (fl_inV d L fx (off_6 L k v2) (k10_off6_inb L k k10_h3) v2 a4 cc10_scratch4.sem); iexists _, _
        isplitr
        rotate_left
        · iexact F8
        ipureintro; intro y; rfl
      isplitl [F10 H6]
      · iapply (Entails.of_eq (congrArg (outSlotV d L fx a6 cc10_scratch6.sem) (show 2 * k.val + 2 = 2 * (k.val + 1) by ring)))
        iapply (fl_outV d L fx (off_5 L k v0) (k10_off5_inb L k k10_h2) v0 a4 a6 cc10_scratch6.sem f0 g4 g6' hl6 hin4); iexists _
        isplitr
        rotate_left
        · isplitl [F10]; · iexact F10
          iexact H6
        ipureintro; intro y; rfl
      isplitl [F9]
      · iapply (Entails.of_eq (congrArg (inSlotV d L fx a5 cc10_scratch5.sem) (show 2 * k.val + 3 = 2 * (k.val + 1) + 1 by ring)))
        iapply (fl_inV d L fx (off_11 L k v3') (k10_off11_inb L k k10_h6) v3' a5 cc10_scratch5.sem); iexists _, _
        isplitr
        rotate_left
        · iexact F9
        ipureintro; intro y; rfl
      · iapply (Entails.of_eq (congrArg (outSlotV d L fx a7 cc10_scratch7.sem) (show 2 * k.val + 1 + 2 = 2 * (k.val + 1) + 1 by ring)))
        iapply (fl_outV d L fx (off_10 L k v1) (k10_off10_inb L k k10_h5) v1 a5 a7 cc10_scratch7.sem f1 g5 g7' hl7 hin5); iexists _
        isplitr
        rotate_left
        · isplitl [F11]; · iexact F11
          iexact H7
        ipureintro; intro y; rfl
  · unfold invV
    isplitr; · iexact Hmw
    isplitl [HO]
    · iexists W; isplitr
      · ipureintro; exact fun p hp => .inl hp
      · iexact HO
    isplitl [HX]; · iexact HX
    isplitl [HOut]; · iapply (Entails.of_eq (oMix_zero d L fx).symm); iexact HOut
    isplitl [S8]; · iexact S8
    isplitl [H6 Hs10]
    · rw [outSlotV_neg d L fx (by omega)]; isplitl [H6]; · iexists _; iexact H6
      iexact Hs10
    isplitl [S9]; · iexact S9
    rw [outSlotV_neg d L fx (by omega)]; isplitl [H7]; · iexists _; iexact H7
    iexact Hs11
  iintro %acc' HI
  ihave HI := (Entails.of_eq (congrArg (fun t => invV d L O W fx t acc') trips1)) $$ HI
  unfold invV
  icases HI with ⟨-, ⟨%W', %hW', HO⟩, HX, HOut, S8, S10, S9, S11⟩
  have nv16 : ¬ valid L (2 * 8) := by unfold valid; omega
  have nv17 : ¬ valid L (2 * 8 + 1) := by unfold valid; omega
  have hm14 : 2 ≤ 2 * 8 ∧ valid L (2 * 8 - 2) := ⟨by omega, Or.inl (by omega)⟩
  ihave S8 := (Entails.of_eq (inSlotV_neg d L fx nv16)) $$ S8
  icases S8 with ⟨⟨%g4', H4⟩, Hs8⟩
  ihave S9 := (Entails.of_eq (inSlotV_neg d L fx nv17)) $$ S9
  icases S9 with ⟨⟨%g5', H5⟩, Hs9⟩
  ihave S10 := (Entails.of_eq (outSlotV_pos d L fx hm14)) $$ S10
  icases S10 with ⟨%g6', F10, R6⟩
  by_cases hb : big L
  · have k10_h8 : k10_cond8 L = 1#1 := (cond8_iff L).mpr hb
    have hm15 : 2 ≤ 2 * 8 + 1 ∧ valid L (2 * 8 + 1 - 2) := ⟨by omega, Or.inr ⟨by omega, hb⟩⟩
    ihave S11 := (Entails.of_eq (outSlotV_pos d L fx hm15)) $$ S11
    icases S11 with ⟨%g7', F11, R7⟩
    sl_exec
    sl_step
    isplitl [HX]; · iapply (xRange_end d L fx); iexact HX
    isplitl [HOut F10_dst F11_dst]
    · iapply (Entails.of_eq (oRange_end (oQ d L fx)).symm)
      isplitl [F10_dst]; · iapply (Entails.of_eq (oQ_pos d L fx hm14.2).symm); iexact F10_dst
      isplitl [F11_dst]; · iapply (Entails.of_eq (oQ_pos d L fx hm15.2).symm); iexact F11_dst
      iapply (Entails.of_eq (oMix_end d L fx)); iexact HOut
    isplitl [H4]; · iexists _; iexact H4
    isplitl [H5]; · iexists _; iexact H5
    isplitl [R6]; · iexists _; iexact R6
    isplitl [R7]; · iexists _; iexact R7
    isplitl [Hs8]; · iexact Hs8
    isplitl [Hs9]; · iexact Hs9
    isplitl [F10]; · iexact F10
    isplitl [F11]; · iexact F11
    isplitl [HO]
    · iexists _; isplitr
      rotate_left
      · iexact HO
      ipureintro; intro p hp
      rcases Finset.mem_insert.mp hp with rfl | hp
      · exact .inr rfl
      rcases Finset.mem_insert.mp hp with rfl | hp
      · exact .inr rfl
      exact hW' p hp
    iexact HR
  · have k10_h8 : ¬ k10_cond8 L = 1#1 := fun h => hb ((cond8_iff L).mp h)
    have hm15 : ¬ (2 ≤ 2 * 8 + 1 ∧ valid L (2 * 8 + 1 - 2)) := by intro h; have := h.2; unfold valid at this; omega
    ihave S11 := (Entails.of_eq (outSlotV_neg d L fx hm15)) $$ S11
    icases S11 with ⟨⟨%g7', R7⟩, F11⟩
    sl_exec
    sl_step
    isplitl [HX]; · iapply (xRange_end d L fx); iexact HX
    isplitl [HOut F10_dst]
    · iapply (Entails.of_eq (oRange_end (oQ d L fx)).symm)
      isplitl [F10_dst]; · iapply (Entails.of_eq (oQ_pos d L fx hm14.2).symm); iexact F10_dst
      isplitr; · iapply (Entails.of_eq (oQ_neg d L fx (n := 15) (by unfold valid; omega)).symm); iempintro
      iapply (Entails.of_eq (oMix_end d L fx)); iexact HOut
    isplitl [H4]; · iexists _; iexact H4
    isplitl [H5]; · iexists _; iexact H5
    isplitl [R6]; · iexists _; iexact R6
    isplitl [R7]; · iexists _; iexact R7
    isplitl [Hs8]; · iexact Hs8
    isplitl [Hs9]; · iexact Hs9
    isplitl [F10]; · iexact F10
    isplitl [F11]; · iexact F11
    isplitl [HO]
    · iexists _; isplitr
      rotate_left
      · iexact HO
      ipureintro; intro p hp
      rcases Finset.mem_insert.mp hp with rfl | hp
      · exact .inr rfl
      exact hW' p hp
    iexact HR

/-! The subcore's scoped storage: the four staging buffers and the four semaphores of this call, and the rest. -/

abbrev c8 : GSem nD τ sig := (thr d L, SemLoc.dma cc10_scratch4.sem)
abbrev c9 : GSem nD τ sig := (thr d L, SemLoc.dma cc10_scratch5.sem)
abbrev c10 : GSem nD τ sig := (thr d L, SemLoc.dma cc10_scratch6.sem)
abbrev c11 : GSem nD τ sig := (thr d L, SemLoc.dma cc10_scratch7.sem)

omit [FloatOps F] in
theorem ownSems0_V :
    (ownSems0 (thr d L) : sProp 𝕄)
      = iprop(semVal (c8 d L) 0 ∗ semVal (c9 d L) 0 ∗ semVal (c10 d L) 0 ∗ semVal (c11 d L) 0
          ∗ bigSep (((((ownCells (thr d L)).erase (c8 d L)).erase (c9 d L)).erase (c10 d L)).erase (c11 d L)) fun g => semVal g 0) := by
  unfold SparseCore.Cfg.ownSems0
  rw [SparseCore.bigSep_erase' ((mem_ownCells (g := c8 d L)).mpr ⟨rfl, by
      show (SemLoc.dma cc10_scratch4.sem : SemLoc sig).isScoped .scVector = true; decide⟩),
    SparseCore.bigSep_erase' (Finset.mem_erase.mpr ⟨fun e => absurd (Prod.mk.inj e).2 (by decide), (mem_ownCells (g := c9 d L)).mpr ⟨rfl, by
      show (SemLoc.dma cc10_scratch5.sem : SemLoc sig).isScoped .scVector = true; decide⟩⟩),
    SparseCore.bigSep_erase' (Finset.mem_erase.mpr ⟨fun e => absurd (Prod.mk.inj e).2 (by decide), Finset.mem_erase.mpr ⟨fun e => absurd (Prod.mk.inj e).2 (by decide),
      (mem_ownCells (g := c10 d L)).mpr ⟨rfl, by show (SemLoc.dma cc10_scratch6.sem : SemLoc sig).isScoped .scVector = true; decide⟩⟩⟩),
    SparseCore.bigSep_erase' (Finset.mem_erase.mpr ⟨fun e => absurd (Prod.mk.inj e).2 (by decide), Finset.mem_erase.mpr ⟨fun e => absurd (Prod.mk.inj e).2 (by decide),
      Finset.mem_erase.mpr ⟨fun e => absurd (Prod.mk.inj e).2 (by decide),
      (mem_ownCells (g := c11 d L)).mpr ⟨rfl, by show (SemLoc.dma cc10_scratch7.sem : SemLoc sig).isScoped .scVector = true; decide⟩⟩⟩⟩)]

abbrev pV (L : grid10.Coords) : Proc τ := Proc.scVector (cV L) (jV L)

omit [FloatOps F] in
theorem ownBufs_V :
    (ownBufs (thr d L) : sProp 𝕄)
      = iprop((∃ f, (thr d L).loc cc10_scratch0 ↦{fullShare} f) ∗ (∃ f, (thr d L).loc cc10_scratch1 ↦{fullShare} f)
          ∗ (∃ f, (thr d L).loc cc10_scratch2 ↦{fullShare} f) ∗ (∃ f, (thr d L).loc cc10_scratch3 ↦{fullShare} f)
          ∗ bigSep (((((ownRefs (τ := τ) (pV L)).erase ((pV L).devRef cc10_scratch0)).erase ((pV L).devRef cc10_scratch1)).erase
              ((pV L).devRef cc10_scratch2)).erase ((pV L).devRef cc10_scratch3))
              fun b => iprop(∃ f, ((d, b) : Loc nD τ sig) ↦{fullShare} f)) := by
  unfold SparseCore.Cfg.ownBufs
  refine (SparseCore.bigSep_erase' (SparseCore.Cfg.mem_ownRefs_of_owner (p := pV L) (b := (pV L).devRef cc10_scratch0) rfl)).trans ?_
  rw [SparseCore.bigSep_erase' (Finset.mem_erase.mpr ⟨fun e => absurd (Proc.devRef_injective _ e) (show (cc10_scratch1 : Ref sig .scVector) ≠ cc10_scratch0 by decide),
      SparseCore.Cfg.mem_ownRefs_of_owner (p := pV L) (b := (pV L).devRef cc10_scratch1) rfl⟩),
    SparseCore.bigSep_erase' (Finset.mem_erase.mpr ⟨fun e => absurd (Proc.devRef_injective _ e) (show (cc10_scratch2 : Ref sig .scVector) ≠ cc10_scratch1 by decide),
      Finset.mem_erase.mpr ⟨fun e => absurd (Proc.devRef_injective _ e) (show (cc10_scratch2 : Ref sig .scVector) ≠ cc10_scratch0 by decide),
      SparseCore.Cfg.mem_ownRefs_of_owner (p := pV L) (b := (pV L).devRef cc10_scratch2) rfl⟩⟩),
    SparseCore.bigSep_erase' (Finset.mem_erase.mpr ⟨fun e => absurd (Proc.devRef_injective _ e) (show (cc10_scratch3 : Ref sig .scVector) ≠ cc10_scratch2 by decide),
      Finset.mem_erase.mpr ⟨fun e => absurd (Proc.devRef_injective _ e) (show (cc10_scratch3 : Ref sig .scVector) ≠ cc10_scratch1 by decide),
      Finset.mem_erase.mpr ⟨fun e => absurd (Proc.devRef_injective _ e) (show (cc10_scratch3 : Ref sig .scVector) ≠ cc10_scratch0 by decide),
      SparseCore.Cfg.mem_ownRefs_of_owner (p := pV L) (b := (pV L).devRef cc10_scratch3) rfl⟩⟩⟩)]

/-- The rest of the subcore's scoped storage, which the task does not touch. -/
def restR : sProp 𝕄 :=
  iprop((bigSep (((((ownRefs (τ := τ) (pV L)).erase ((pV L).devRef cc10_scratch0)).erase ((pV L).devRef cc10_scratch1)).erase
              ((pV L).devRef cc10_scratch2)).erase ((pV L).devRef cc10_scratch3))
              fun b => iprop(∃ f, ((d, b) : Loc nD τ sig) ↦{fullShare} f))
      ∗ bigSep (((((ownCells (thr d L)).erase (c8 d L)).erase (c9 d L)).erase (c10 d L)).erase (c11 d L)) fun g => semVal g 0)

theorem body_pre (hO : ∀ g, O g none = 0) :
    iprop(levAts (K (F := F)).L (K (F := F)).lev ∗ emp ∗ goRes d L fx ∗ ownBufs (thr d L) ∗ ownSems0 (thr d L) ∗ owes (thr d L) O W)
      ⊢ runPre d L O W fx (restR (F := F) d L) := by
  rw [ownSems0_V, ownBufs_V]
  unfold goRes runPre restR
  iintro ⟨#Hlv, -, ⟨HX, HOut⟩, ⟨H4, H5, H6, H7, Hbufs⟩, ⟨Hs8, Hs9, Hs10, Hs11, Hsems⟩, HO⟩
  ihave Hmw := ((K (F := F)).mayWaits_none (thr := thr d L) hO) $$ Hlv
  isplitr; · iexact Hmw
  isplitl [HO]; · iexact HO
  isplitl [HX]; · iexact HX
  isplitl [HOut]; · iexact HOut
  isplitl [H4]; · iexact H4
  isplitl [H5]; · iexact H5
  isplitl [H6]; · iexact H6
  isplitl [H7]; · iexact H7
  isplitl [Hs8]; · iexact Hs8
  isplitl [Hs9]; · iexact Hs9
  isplitl [Hs10]; · iexact Hs10
  isplitl [Hs11]; · iexact Hs11
  isplitl [Hbufs]; · iexact Hbufs
  iexact Hsems

theorem body_post :
    runPost d L O W fx (restR (F := F) d L)
      ⊢ iprop(tdRes d L fx ∗ ownBufs (thr d L) ∗ ownSems0 (thr d L) ∗ ∃ W', ⌜∀ p ∈ W', p ∈ W ∨ p.2 = none⌝ ∗ owes (thr d L) O W') := by
  rw [ownSems0_V, ownBufs_V]
  unfold tdRes runPost restR
  iintro ⟨HX, HOut, H4, H5, H6, H7, Hs8, Hs9, Hs10, Hs11, HW, Hbufs, Hsems⟩
  isplitl [HX HOut]
  · isplitl [HX]; · iexact HX
    iexact HOut
  isplitl [H4 H5 H6 H7 Hbufs]
  · isplitl [H4]; · iexact H4
    isplitl [H5]; · iexact H5
    isplitl [H6]; · iexact H6
    isplitl [H7]; · iexact H7
    iexact Hbufs
  isplitl [Hs8 Hs9 Hs10 Hs11 Hsems]
  · isplitl [Hs8]; · iexact Hs8
    isplitl [Hs9]; · iexact Hs9
    isplitl [Hs10]; · iexact Hs10
    isplitl [Hs11]; · iexact Hs11
    iexact Hsems
  iexact HW

/-- The task in the launch theorem's shape: from what the call hands the tile and the subcore's scoped storage to
    what the tile hands back and the storage again. -/
theorem tile_body (hF : (K (F := F)).Facts) (hO : ∀ g, O g none = 0) :
    iprop(levAts (K (F := F)).L (K (F := F)).lev ∗ emp ∗ goRes d L fx ∗ scopedBufs (thr d L) ∗ scopedSems0 (thr d L) ∗ owes (thr d L) O W)
      ⊢ wp frame (wpE (defs₀ (F := F)) 𝒱₀ (thr d L) none) Set.univ
          (cc10_sc_group L xtW (Memref.isWhole_whole _) oW (Memref.isWhole_whole _) a4 (Memref.isWhole_whole _) a5 (Memref.isWhole_whole _)
            a6 (Memref.isWhole_whole _) a7 (Memref.isWhole_whole _) cc10_scratch4 cc10_scratch5 cc10_scratch6 cc10_scratch7)
          fun _ => iprop(tdRes d L fx ∗ scopedBufs (thr d L) ∗ scopedSems0 (thr d L)
            ∗ ∃ W', ⌜∀ p ∈ W', p ∈ W ∨ p.2 = none⌝ ∗ owes (thr d L) O W') := by
  rw [(K (F := F)).scopedBufs_V hF d (cV L) (jV L), SparseCore.Cfg.scopedSems0_V (Val := Elt F) d (cV L) (jV L)]
  exact (body_pre d L O W fx hO).trans ((tile_run d L O W fx (restR (F := F) d L)).trans (wp_mono frame _ _ fun _ => body_post d L O W fx))

end Tile

end Cert.Proof.TileK10

end
-- ==== Proof.TileBVal10.lean ====
/-
  What the staging buffers of one vector subcore hold while it copies a piece of 3200 consecutive elements of row 10 of
  the transposed argument into the flat result, read index by index. No program and no ownership here: only the contents.

  A transfer lands the piece in row 0 of an 8 × 3200 staging array (`InRow`: position (0, t) of that row holds element
  (0, pos + t) of the transposed argument, `pos` the piece's first column). A loop of 200 trips copies that row, 16 lanes
  per trip, into the first 3200 elements of a flat staging array of 25600: trip `j` reads the 1 × 16 window at columns
  [16 j, 16 j + 16) of row 0 and writes it, flattened, at elements [16 j, 16 j + 16). After `j` trips the first 16 j
  elements of the flat array are the first 16 j elements of the row (`Lanes`); a trip extends the prefix by 16
  (`lanes_step`: an element below 16 j is outside the window written and keeps its value, an element of the window reads
  the lane written there, which is the row's element at the same column). A second transfer writes the first 3200
  elements of the flat array to the piece of the result at the same `pos`; so every element of that piece of the result
  holds the element of row 10 of the transposed argument at its own position (`out_written`): the composite of the three
  index maps t ↦ (0, pos + t) ↦ (0, t) ↦ t ↦ pos + t is the identity on positions of the row.
-/
import proofs.«206869_g37898791420194_cont_8to1_b_558_20_alg».proof.Proof.TileB10Defs
import proofs.«206869_g37898791420194_cont_8to1_b_558_20_alg».proof.Proof.Spec
import Idealize.ShloMosaic.Lib.WritesUnit
import Idealize.ShloMosaic.Lib.ValueLayout

noncomputable section

namespace Cert.Proof.TileBVal10

open Cert.Proof.TileB10 Cert.Kernel Cert.Kernel.Gen
open Idealize.ShloMosaic Idealize.ShloMosaic.ValueIdx

variable {F : FTy → Type} [FloatOps F]
variable (d : Dev nD) (L : grid10.Coords)
variable (fx : Buf (Elt F) ((Memref.whole main_v0_scv : Memref sig .scVector .hbm S22x1600000 .f32).view.loc (thr d L)))

abbrev rowRect : Rect S8x3200 := Rect.unit (s := S8x3200) ![0, 0] S1x3200.size inb_S8x3200_S1x3200_0_0

/-- row 0 of the staging array is piece n of the argument row -/
def InRow (a : Memref sig .scVector .vmem S8x3200 .f32) (ga : Buf (Elt F) (a.view.loc (thr d L))) (n : ℕ) : Prop :=
  ∀ y : S1x3200.Idx, a.view.read (Elt F) ga (rowRect.emb y) = (inM L n).view.read (Elt F) fx y

theorem inRow_fetch (a : Memref sig .scVector .vmem S8x3200 .f32) (gold : Buf (Elt F) (a.view.loc (thr d L)))
    (w : S1x3200.Idx → Elt F .f32) (n : ℕ) (hw : ∀ y, w y = (inM L n).view.read (Elt F) fx y) :
    InRow d L fx a (a.view.writes (Elt F) gold [⟨rowRect, w⟩]) n :=
  fun y => (View.read_writes_cons_emb a.view gold rowRect w [] y).trans (hw y)

def Lanes (a : Memref sig .scVector .vmem S8x3200 .f32) (b : Memref sig .scVector .vmem S25600 .f32)
    (ga : Buf (Elt F) (a.view.loc (thr d L))) (gb : Buf (Elt F) (b.view.loc (thr d L))) (j : ℕ) : Prop :=
  ∀ (r : ℕ) (hr : r < 3200), r < 16 * j →
    b.view.read (Elt F) gb (ix1 (⟨r, by omega⟩ : Fin 25600)) = a.view.read (Elt F) ga (ix2 (0 : Fin 8) (⟨r, hr⟩ : Fin 3200))

theorem lanes_zero (a : Memref sig .scVector .vmem S8x3200 .f32) (b : Memref sig .scVector .vmem S25600 .f32)
    (ga : Buf (Elt F) (a.view.loc (thr d L))) (gb : Buf (Elt F) (b.view.loc (thr d L))) : Lanes d L a b ga gb 0 := by
  intro r hr h; omega

/-- The 1 × 16 window at column `c` of the staging array, read at lane `t`, is element `(0, c + t)`. -/
theorem idx_window {off : Fin 2 → ℕ} {c : ℕ} (h : off = ![0, c]) (p : ∀ a', off a' + S1x16.size a' ≤ S8x3200.size a')
    (t : Fin 16) (hr : c + t.val < 3200) :
    (Rect.unit (s := S8x3200) off S1x16.size p).toLoadRect.idx (ix2 (0 : Fin 1) t) = ix2 (0 : Fin 8) (⟨c + t.val, hr⟩ : Fin 3200) := by
  subst h
  funext a'; apply Fin.ext
  rw [LoadRect.idx_apply]
  match a' with
  | ⟨0, _⟩ => show 0 + 1 * 0 = 0; omega
  | ⟨1, _⟩ => show c + 1 * t.val = c + t.val; omega

/-- One trip of a lane-copy loop, the offsets given by their closed forms. -/
theorem lanes_step_core (a : Memref sig .scVector .vmem S8x3200 .f32) (b : Memref sig .scVector .vmem S25600 .f32)
    (ga : Buf (Elt F) (a.view.loc (thr d L))) (gb : Buf (Elt F) (b.view.loc (thr d L)))
    (t : ℕ) {off3 : Fin 2 → ℕ} {off4 : Fin 1 → ℕ} (h3 : off3 = ![0, 16 * t]) (h4 : off4 = ![16 * t])
    (p3 : ∀ a', off3 a' + S1x16.size a' ≤ S8x3200.size a') (p4 : ∀ a', off4 a' + S16.size a' ≤ S25600.size a')
    (h : Lanes d L a b ga gb t) :
    Lanes d L a b ga (b.view.writes (Elt F) gb [⟨Rect.unit (s := S25600) off4 S16.size p4,
      shapeCast S16 (a.view.readAt (Elt F) (Rect.unit (s := S8x3200) off3 S1x16.size p3).toLoadRect ga) shapeCasts_S1x16_S16⟩]) (t + 1) := by
  intro r hr hlt
  by_cases hlo : r < 16 * t
  · refine (View.read_writes_cons_unit_of_not_mem b.view gb p4 _ [] _ h4 (0 : Fin 1) (Or.inl ?_)).trans (h r hr hlo)
    show r < 16 * t
    exact hlo
  · have hx : r - 16 * t < 16 := by omega
    refine (View.read_writes_cons_unit_of_mem b.view gb p4 _ [] _ (ix1 (⟨r - 16 * t, hx⟩ : Fin 16)) h4 ?_).trans ?_
    · intro a'
      match a' with
      | ⟨0, _⟩ => show r = 16 * t + (r - 16 * t); omega
    · rw [shapeCast_1a_a_apply, View.readAt_apply, idx_window h3 p3 ⟨r - 16 * t, hx⟩ (by show 16 * t + (r - 16 * t) < 3200; omega)]
      congr 2
      apply Fin.ext
      show 16 * t + (r - 16 * t) = r
      omega

theorem lanes_step (a : Memref sig .scVector .vmem S8x3200 .f32) (b : Memref sig .scVector .vmem S25600 .f32)
    (ga : Buf (Elt F) (a.view.loc (thr d L))) (gb : Buf (Elt F) (b.view.loc (thr d L)))
    (j : Fin k10_t2_loop.trips) (p3 : ∀ a', (k10_off3 j) a' + S1x16.size a' ≤ S8x3200.size a')
    (p4 : ∀ a', (k10_off4 j) a' + S16.size a' ≤ S25600.size a') (h : Lanes d L a b ga gb j.val) :
    Lanes d L a b ga (b.view.writes (Elt F) gb [⟨Rect.unit (s := S25600) (k10_off4 j) S16.size p4,
      k10_pay1 (a.view.readAt (Elt F) (Rect.unit (s := S8x3200) (k10_off3 j) S1x16.size p3).toLoadRect ga)⟩]) (j.val + 1) :=
  lanes_step_core d L a b ga gb j.val (k10_off3_eq j) (k10_off4_eq j) p3 p4 h

theorem lanes_step' (a : Memref sig .scVector .vmem S8x3200 .f32) (b : Memref sig .scVector .vmem S25600 .f32)
    (ga : Buf (Elt F) (a.view.loc (thr d L))) (gb : Buf (Elt F) (b.view.loc (thr d L)))
    (j : Fin k10_t3_loop.trips) (p3 : ∀ a', (k10_off8 j) a' + S1x16.size a' ≤ S8x3200.size a')
    (p4 : ∀ a', (k10_off9 j) a' + S16.size a' ≤ S25600.size a') (h : Lanes d L a b ga gb j.val) :
    Lanes d L a b ga (b.view.writes (Elt F) gb [⟨Rect.unit (s := S25600) (k10_off9 j) S16.size p4,
      k10_pay2 (a.view.readAt (Elt F) (Rect.unit (s := S8x3200) (k10_off8 j) S1x16.size p3).toLoadRect ga)⟩]) (j.val + 1) :=
  lanes_step_core d L a b ga gb j.val (k10_off8_eq j) (k10_off9_eq j) p3 p4 h

/-- Position `y` of the write-out window of the flat staging array is its element `y 0`. -/
theorem stg_emb (y : S3200.Idx) (hy : (y 0).val < 25600) :
    (Rect.unit (s := S25600) ![0] S3200.size inb_S25600_S3200_0).emb y = ix1 (⟨(y 0).val, hy⟩ : Fin 25600) := by
  funext a'; apply Fin.ext
  match a' with
  | ⟨0, _⟩ => show 0 + 1 * (y 0).val = (y 0).val; omega

/-- Position `(0, t)` of row 0 of the staging array is its element `(0, t)`. -/
theorem row_emb (t : Fin 3200) : rowRect.emb (ix2 (0 : Fin 1) t) = ix2 (0 : Fin 8) t := by
  funext a'; apply Fin.ext
  match a' with
  | ⟨0, _⟩ => show 0 + 1 * 0 = 0; omega
  | ⟨1, _⟩ => show 0 + 1 * t.val = t.val; omega

/-- Position `(0, t)` of piece `n` of the argument row is element `(0, pos + t)` of the transposed argument;
    position `y` of piece `n` of the result is element `pos + y 0` of the result. -/
theorem in_emb (n : ℕ) (t : Fin 3200) (h : pos L n + t.val < 1600000) :
    (inM L n).view.emb (ix2 (0 : Fin 1) t) = ix2 (10 : Fin 22) (⟨pos L n + t.val, h⟩ : Fin 1600000) := by
  funext a'; apply Fin.ext
  match a' with
  | ⟨0, _⟩ => show 10 + 1 * 0 = 10; omega
  | ⟨1, _⟩ => show pos L n + 1 * t.val = pos L n + t.val; omega

theorem out_emb (n : ℕ) (y : S3200.Idx) (h : pos L n + (y 0).val < 1600000) :
    (outM L n).view.emb y = ix1 (⟨pos L n + (y 0).val, h⟩ : Fin 1600000) := by
  funext a'; apply Fin.ext
  match a' with
  | ⟨0, _⟩ => show pos L n + 1 * (y 0).val = pos L n + (y 0).val; omega

/-- Both lane-copy loops run 200 trips: 200 · 16 = 3200, the whole row. -/
theorem trips2 : k10_t2_loop.trips = 200 := by decide
theorem trips3 : k10_t3_loop.trips = 200 := by decide

/-- After all its trips a lane-copy loop has copied the whole row. -/
theorem lanes_all (a : Memref sig .scVector .vmem S8x3200 .f32) (b : Memref sig .scVector .vmem S25600 .f32)
    (ga : Buf (Elt F) (a.view.loc (thr d L))) (gb : Buf (Elt F) (b.view.loc (thr d L)))
    (h : Lanes d L a b ga gb k10_t2_loop.trips) : Lanes d L a b ga gb 200 := trips2 ▸ h
theorem lanes_all' (a : Memref sig .scVector .vmem S8x3200 .f32) (b : Memref sig .scVector .vmem S25600 .f32)
    (ga : Buf (Elt F) (a.view.loc (thr d L))) (gb : Buf (Elt F) (b.view.loc (thr d L)))
    (h : Lanes d L a b ga gb k10_t3_loop.trips) : Lanes d L a b ga gb 200 := trips3 ▸ h

/-- The write-out of a piece: the first 3200 elements of the flat staging array, which the 200 lane copies filled from
    row 0 of the staging array, which the fetch filled from piece `n` of row 10 of the transposed argument, land at
    piece `n` of the result, at the same positions of the row. -/
theorem out_written (a : Memref sig .scVector .vmem S8x3200 .f32) (b : Memref sig .scVector .vmem S25600 .f32) (n : ℕ)
    (ga : Buf (Elt F) (a.view.loc (thr d L))) (gb : Buf (Elt F) (b.view.loc (thr d L)))
    (f0 : Buf (Elt F) ((outM L n).view.loc (thr d L))) (w : S3200.Idx → Elt F .f32)
    (hw : ∀ y, w y = (stg b).view.read (Elt F) gb y) (hl : Lanes d L a b ga gb 200) (hr : InRow d L fx a ga n) (hv : valid L n) :
    ∀ i ∈ (outM L n).view.set, ((outM L n).view.writes (Elt F) f0 [⟨Rect.whole _, w⟩]) i = Cert.Spec.row 10 fx i := by
  intro i hi
  obtain ⟨y, -, rfl⟩ := Finset.mem_map.mp hi
  have hy : (y 0).val < 3200 := (y 0).isLt
  have hp : pos L n + (y 0).val < 1600000 := by unfold pos; omega
  have e1 : (outM L n).view.writes (Elt F) f0 [⟨Rect.whole _, w⟩] ((outM L n).view.emb y) = w y := by
    have h := View.read_writes_cons_emb (outM L n).view f0 (Rect.whole _) w [] y
    rw [Rect.emb_whole_apply] at h
    exact (cast_eq _ _).symm.trans ((View.read_apply _ _).symm.trans h)
  have e2 : (stg b).view.read (Elt F) gb y = b.view.read (Elt F) gb (ix1 (⟨(y 0).val, by omega⟩ : Fin 25600)) :=
    congrArg (b.view.read (Elt F) gb) (stg_emb y (by omega))
  have e3 : a.view.read (Elt F) ga (ix2 (0 : Fin 8) (⟨(y 0).val, hy⟩ : Fin 3200))
      = (inM L n).view.read (Elt F) fx (ix2 (0 : Fin 1) (⟨(y 0).val, hy⟩ : Fin 3200)) :=
    (congrArg (a.view.read (Elt F) ga) (row_emb ⟨(y 0).val, hy⟩).symm).trans (hr _)
  have e4 : (inM L n).view.read (Elt F) fx (ix2 (0 : Fin 1) (⟨(y 0).val, hy⟩ : Fin 3200))
      = fx (ix2 (10 : Fin 22) (⟨pos L n + (y 0).val, hp⟩ : Fin 1600000)) :=
    ((View.read_apply _ _).trans (cast_eq _ _)).trans (congrArg fx (in_emb L n ⟨(y 0).val, hy⟩ hp))
  have e5 : Cert.Spec.row 10 fx ((outM L n).view.emb y) = fx (ix2 (10 : Fin 22) (⟨pos L n + (y 0).val, hp⟩ : Fin 1600000)) :=
    (congrArg (Cert.Spec.row 10 fx) (out_emb L n y hp)).trans (Cert.Spec.row_apply 10 fx _)
  exact e1.trans ((hw y).trans (e2.trans ((hl _ hy (by omega)).trans (e3.trans (e4.trans e5.symm)))))

end Cert.Proof.TileBVal10

end
-- ==== Proof.TileB10.lean ====
/-
  One vector subcore's task of copy kernel 10 (counting from 0), run symbolically: the two fetch slots and two write-out slots
  between trips of the main loop (what each transfer in flight will hand back, and what the staging buffers hold), the
  invariant of the main loop and of the two lane-copy loops, and the task's run — from the tile's pieces of row 10 of
  the transposed argument and of the result to the same pieces with the result holding the row's elements.
-/
import proofs.«206869_g37898791420194_cont_8to1_b_558_20_alg».proof.Proof.TileB10Defs
import proofs.«206869_g37898791420194_cont_8to1_b_558_20_alg».proof.Proof.TileBVal10
noncomputable section

namespace Cert.Proof.TileB10

open Cert.Kernel Cert.Kernel.Gen Cert.Proof.TileBVal10
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 22) (Elt F) ℕ UU ℕ
local notation "xtW" => (Memref.whole Cert.Kernel.main_v0_scv : Memref Cert.Kernel.sig Kind.scVector Space.hbm Cert.Kernel.S22x1600000 EltTy.f32)
local notation "oW" => (Memref.whole Cert.Kernel.main_v11_scv : Memref Cert.Kernel.sig Kind.scVector Space.hbm Cert.Kernel.S1600000 EltTy.f32)
local notation "a4" => (Memref.whole Cert.Kernel.cc10_scratch0 : Memref Cert.Kernel.sig Kind.scVector Space.vmem Cert.Kernel.S8x3200 EltTy.f32)
local notation "a5" => (Memref.whole Cert.Kernel.cc10_scratch1 : Memref Cert.Kernel.sig Kind.scVector Space.vmem Cert.Kernel.S8x3200 EltTy.f32)
local notation "a6" => (Memref.whole Cert.Kernel.cc10_scratch2 : Memref Cert.Kernel.sig Kind.scVector Space.vmem Cert.Kernel.S25600 EltTy.f32)
local notation "a7" => (Memref.whole Cert.Kernel.cc10_scratch3 : Memref Cert.Kernel.sig Kind.scVector Space.vmem Cert.Kernel.S25600 EltTy.f32)

variable [FloatOps F]

section Tile

variable (d : Dev nD) (L : grid10.Coords)
variable (O : CellTallies nD τ sig (HIx 22)) (W : Waits sig (HIx 22))
variable (fx : Buf (Elt F) ((xtW).view.loc (thr d L)))

/-- Piece `n` of the result at its final contents. -/
abbrev oqPiece (n : ℕ) : sProp 𝕄 := (outM L n).view.loc (thr d L) ↦[(outM L n).view.set]{fullShare} (Cert.Spec.row 10 fx)
theorem oQ_pos {n : ℕ} (v : valid L n) : oQ d L fx n = oqPiece d L fx n := if_pos v
theorem oQ_neg {n : ℕ} (v : ¬ valid L n) : oQ d L fx n = iprop(emp) := if_neg v

/-- A fetch slot, remembering that the staging row it will hand back holds the piece. -/
def inSlotV (a : Memref sig .scVector .vmem S8x3200 .f32) (sm : DmaSem sig) (n : ℕ) : sProp 𝕄 :=
  if valid L n then
    iprop(∃ g, ⌜InRow d L fx a g n⌝ ∗ Transfers.Flight countersEmb (thr d L) (SemLoc.dma sm) (default : HIx 22) NN
      iprop((a.view.loc (thr d L) ↦{fullShare} g) ∗ xtPiece d L fx n))
  else iprop((∃ g, a.view.loc (thr d L) ↦{fullShare} g) ∗ semVal (thr d L, SemLoc.dma sm) 0)

/-- A write-out slot: the piece in flight will come back holding the row's elements. -/
def outSlotV (a : Memref sig .scVector .vmem S25600 .f32) (sm : DmaSem sig) (m : ℕ) : sProp 𝕄 :=
  if 2 ≤ m ∧ valid L (m - 2) then
    iprop(∃ g, Transfers.Flight countersEmb (thr d L) (SemLoc.dma sm) (default : HIx 22) NN
        iprop(oqPiece d L fx (m - 2) ∗ ((stg a).view.loc (thr d L) ↦[(stg a).view.set]{fullShare} g))
      ∗ (a.view.loc (thr d L) ↦[Finset.univ \ (stg a).view.set]{fullShare} g))
  else iprop((∃ g, a.view.loc (thr d L) ↦{fullShare} g) ∗ semVal (thr d L, SemLoc.dma sm) 0)

theorem inSlotV_pos {a : Memref sig .scVector .vmem S8x3200 .f32} {sm : DmaSem sig} {n : ℕ} (v : valid L n) :
    inSlotV d L fx a sm n = iprop(∃ g, ⌜InRow d L fx a g n⌝ ∗ Transfers.Flight countersEmb (thr d L) (SemLoc.dma sm) (default : HIx 22) NN
      iprop((a.view.loc (thr d L) ↦{fullShare} g) ∗ xtPiece d L fx n)) := by unfold inSlotV; rw [if_pos v]
theorem inSlotV_neg {a : Memref sig .scVector .vmem S8x3200 .f32} {sm : DmaSem sig} {n : ℕ} (v : ¬ valid L n) :
    inSlotV d L fx a sm n = iprop((∃ g, a.view.loc (thr d L) ↦{fullShare} g) ∗ semVal (thr d L, SemLoc.dma sm) 0) := by
  unfold inSlotV; rw [if_neg v]
theorem outSlotV_pos {a : Memref sig .scVector .vmem S25600 .f32} {sm : DmaSem sig} {m : ℕ} (h : 2 ≤ m ∧ valid L (m - 2)) :
    outSlotV d L fx a sm m = iprop(∃ g, Transfers.Flight countersEmb (thr d L) (SemLoc.dma sm) (default : HIx 22) NN
        iprop(oqPiece d L fx (m - 2) ∗ ((stg a).view.loc (thr d L) ↦[(stg a).view.set]{fullShare} g))
      ∗ (a.view.loc (thr d L) ↦[Finset.univ \ (stg a).view.set]{fullShare} g)) := by unfold outSlotV; rw [if_pos h]
theorem outSlotV_neg {a : Memref sig .scVector .vmem S25600 .f32} {sm : DmaSem sig} {m : ℕ} (h : ¬ (2 ≤ m ∧ valid L (m - 2))) :
    outSlotV d L fx a sm m = iprop((∃ g, a.view.loc (thr d L) ↦{fullShare} g) ∗ semVal (thr d L, SemLoc.dma sm) 0) := by
  unfold outSlotV; rw [if_neg h]

/-- A fetch just issued: the staging row will hold what the transfer reads, which is the piece. -/
theorem fl_inV {off : Fin 2 → ℕ} {n : ℕ} (h : off = ![10, pos L n]) (p : ∀ a, off a + S1x3200.size a ≤ S22x1600000.size a) (v : valid L n)
    (a : Memref sig .scVector .vmem S8x3200 .f32) (sm : DmaSem sig) :
    (iprop(∃ (gold : Buf (Elt F) (a.view.loc (thr d L))) (w : S1x3200.Idx → Elt F .f32),
        ⌜∀ y, w y = ((xtW).slice (Rect.unit (s := S22x1600000) off S1x3200.size p) (fun _ => rfl)).view.read (Elt F) fx y⌝
        ∗ Transfers.Flight countersEmb (thr d L) (SemLoc.dma sm) (default : HIx 22) NN
          iprop((a.view.loc (thr d L) ↦{fullShare} a.view.writes (Elt F) gold [⟨rowRect, w⟩])
            ∗ (((xtW).slice (Rect.unit (s := S22x1600000) off S1x3200.size p) (fun _ => rfl)).view.loc (thr d L)
                ↦[((xtW).slice (Rect.unit (s := S22x1600000) off S1x3200.size p) (fun _ => rfl)).view.set]{fullShare} fx))) : sProp 𝕄)
      ⊢ inSlotV d L fx a sm n := by
  subst h
  rw [inSlotV_pos d L fx v]
  iintro ⟨%gold, %w, %hw, H⟩
  iexists _
  isplitr
  · ipureintro; exact inRow_fetch d L fx a gold w n hw
  · iexact H

set_option maxHeartbeats 4000000 in
/-- A write-out just issued from a flat staging buffer whose first 3200 elements are the staging row, itself piece
    `n` of the argument row: the piece of the result will hold the row's elements. -/
theorem fl_outV {off : Fin 1 → ℕ} {n : ℕ} (h : off = ![pos L n]) (p : ∀ a, off a + S3200.size a ≤ S1600000.size a) (v : valid L n)
    (ar : Memref sig .scVector .vmem S8x3200 .f32) (a : Memref sig .scVector .vmem S25600 .f32) (sm : DmaSem sig)
    (f0 : Buf (Elt F) ((oW).view.loc (thr d L))) (ga : Buf (Elt F) (ar.view.loc (thr d L))) (gb : Buf (Elt F) (a.view.loc (thr d L)))
    (hl : Lanes d L ar a ga gb 200) (hr : InRow d L fx ar ga n) :
    (iprop(∃ (w : S3200.Idx → Elt F .f32),
        ⌜∀ y, w y = (stg a).view.read (Elt F) gb y⌝
        ∗ Transfers.Flight countersEmb (thr d L) (SemLoc.dma sm) (default : HIx 22) NN
          iprop((((oW).slice (Rect.unit (s := S1600000) off S3200.size p) (fun _ => rfl)).view.loc (thr d L)
                ↦[((oW).slice (Rect.unit (s := S1600000) off S3200.size p) (fun _ => rfl)).view.set]{fullShare}
                  (((oW).slice (Rect.unit (s := S1600000) off S3200.size p) (fun _ => rfl)).view.writes (Elt F) f0 [⟨Rect.whole _, w⟩]))
            ∗ ((stg a).view.loc (thr d L) ↦[(stg a).view.set]{fullShare} gb))
        ∗ (a.view.loc (thr d L) ↦[Finset.univ \ (stg a).view.set]{fullShare} gb)) : sProp 𝕄)
      ⊢ outSlotV d L fx a sm (n + 2) := by
  subst h
  rw [outSlotV_pos d L fx (m := n + 2) ⟨by omega, by simpa using v⟩]
  iintro ⟨%w, %hw, H, R⟩
  have hD : (iprop(((outM L n).view.loc (thr d L) ↦[(outM L n).view.set]{fullShare} ((outM L n).view.writes (Elt F) f0 [⟨Rect.whole _, w⟩]))
          ∗ ((stg a).view.loc (thr d L) ↦[(stg a).view.set]{fullShare} gb)) : sProp 𝕄)
      ⊢ iprop(oqPiece d L fx (n + 2 - 2) ∗ ((stg a).view.loc (thr d L) ↦[(stg a).view.set]{fullShare} gb)) := by
    rw [Nat.add_sub_cancel]
    have e : (((outM L n).view.loc (thr d L) ↦[(outM L n).view.set]{fullShare} ((outM L n).view.writes (Elt F) f0 [⟨Rect.whole _, w⟩])) : sProp 𝕄)
        = oqPiece d L fx n := pointsTo_congr (out_written d L fx ar a n ga gb f0 w hw hl hr v)
    iintro ⟨H1, H2⟩
    isplitl [H1]
    · iapply (Entails.of_eq e); iexact H1
    · iexact H2
  iexists gb
  isplitl [H]
  · iapply (Transfers.Flight_mono countersEmb (thr d L) hD); iexact H
  · iexact R

/-- The result pieces outside the slots before trip `t`: those already written hold the row, the others some contents. -/
def oMix (t n : ℕ) : sProp 𝕄 := if n + 2 < 2 * t then oQ d L fx n else oP (F := F) d L n
theorem oMix_lt {t n : ℕ} (h : n + 2 < 2 * t) : oMix d L fx t n = oQ d L fx n := if_pos h
theorem oMix_ge {t n : ℕ} (h : ¬ n + 2 < 2 * t) : oMix d L fx t n = oP (F := F) d L n := if_neg h
theorem oMix_core (k : ℕ) : bigSep (oCore k) (oMix d L fx k) = bigSep (oCore k) (oMix d L fx (k + 1)) :=
  bigSep_congr fun n hn => by
    have hn' : n + 2 ≠ 2 * k ∧ n + 2 ≠ 2 * k + 1 ∧ n ≠ 2 * k ∧ n ≠ 2 * k + 1 := by
      simp only [oCore, Finset.mem_filter, Finset.mem_range] at hn; exact hn.2
    by_cases h : n + 2 < 2 * k
    · rw [oMix_lt d L fx h, oMix_lt d L fx (by omega)]
    · rw [oMix_ge d L fx h, oMix_ge d L fx (by omega)]
theorem oMix_zero : bigSep (oSet 0) (oMix d L fx 0) = bigSep (Finset.range 18) (oP (F := F) d L) := by
  rw [oSet_zero]; exact bigSep_congr fun n _ => oMix_ge d L fx (by omega)
theorem oMix_end : bigSep (oSet 8) (oMix d L fx 8) = bigSep (oSet 8) (oQ d L fx) :=
  bigSep_congr fun n hn => by
    have hn' : n < 18 ∧ n + 2 ≠ 16 ∧ n + 2 ≠ 17 := by simpa only [oSet, Finset.mem_filter, Finset.mem_range] using hn
    by_cases h : n + 2 < 2 * 8
    · exact oMix_lt d L fx h
    · rw [oMix_ge d L fx h, oP_neg (F := F) d L (by unfold valid; omega), oQ_neg d L fx (by unfold valid; omega)]

/-- The lane-copy loops: before trip `j` the first 16·j elements of the flat staging buffer are the staging row's. -/
def laneV0 (g4 : Buf (Elt F) ((a4).view.loc (thr d L))) (j : ℕ) (_ : PUnit) : sProp 𝕄 :=
  iprop(((a4).view.loc (thr d L) ↦{fullShare} g4) ∗ (∃ g, ((a6).view.loc (thr d L) ↦{fullShare} g) ∗ ⌜Lanes d L a4 a6 g4 g j⌝))
def laneV1 (g5 : Buf (Elt F) ((a5).view.loc (thr d L))) (j : ℕ) (_ : PUnit) : sProp 𝕄 :=
  iprop(((a5).view.loc (thr d L) ↦{fullShare} g5) ∗ (∃ g, ((a7).view.loc (thr d L) ↦{fullShare} g) ∗ ⌜Lanes d L a5 a7 g5 g j⌝))

def invV (t : ℕ) (_ : PUnit) : sProp 𝕄 :=
  iprop(Transfers.MayWaits (thr d L) (none : HIx 22) O
    ∗ (∃ W', ⌜∀ p ∈ W', p ∈ W ∨ p.2 = none⌝ ∗ owes (thr d L) O W')
    ∗ bigSep (xSet t) (xP d L fx) ∗ bigSep (oSet t) (oMix d L fx t)
    ∗ inSlotV d L fx a4 cc10_scratch4.sem (2 * t) ∗ outSlotV d L fx a6 cc10_scratch6.sem (2 * t)
    ∗ inSlotV d L fx a5 cc10_scratch5.sem (2 * t + 1) ∗ outSlotV d L fx a7 cc10_scratch7.sem (2 * t + 1))

/-- After the last trip nothing of the argument row is in a slot: the tile holds all its pieces. -/
theorem xRange_end : bigSep (xSet 8) (xP d L fx) ⊢ bigSep (Finset.range 18) (xP d L fx) := by
  rw [two_out (s := Finset.range 18) (a := 16) (b := 17) (by decide) (by decide) (by decide),
    show ((Finset.range 18).erase 16).erase 17 = xSet 8 by decide]
  iintro H
  isplitr; · iapply (Entails.of_eq (xP_neg d L fx (n := 16) (by unfold valid; omega)).symm); iempintro
  isplitr; · iapply (Entails.of_eq (xP_neg d L fx (n := 17) (by unfold valid; omega)).symm); iempintro
  iexact H
omit [FloatOps F] in
theorem oRange_end (Φ : ℕ → sProp 𝕄) : bigSep (Finset.range 18) Φ = iprop(Φ 14 ∗ Φ 15 ∗ bigSep (oSet 8) Φ) := by
  rw [two_out (s := Finset.range 18) (a := 14) (b := 15) (by decide) (by decide) (by decide),
    show ((Finset.range 18).erase 14).erase 15 = oSet 8 by decide]

/-- What the run starts from and ends with, beside an untouched rest `R`. -/
def runPre (R : sProp 𝕄) : sProp 𝕄 :=
    iprop(Transfers.MayWaits (thr d L) (none : HIx 22) O ∗ owes (thr d L) O W
        ∗ bigSep (Finset.range 18) (xP d L fx) ∗ bigSep (Finset.range 18) (oP (F := F) d L)
        ∗ (∃ g, (a4).view.loc (thr d L) ↦{fullShare} g) ∗ (∃ g, (a5).view.loc (thr d L) ↦{fullShare} g)
        ∗ (∃ g, (a6).view.loc (thr d L) ↦{fullShare} g) ∗ (∃ g, (a7).view.loc (thr d L) ↦{fullShare} g)
        ∗ semVal (thr d L, SemLoc.dma cc10_scratch4.sem) 0 ∗ semVal (thr d L, SemLoc.dma cc10_scratch5.sem) 0
        ∗ semVal (thr d L, SemLoc.dma cc10_scratch6.sem) 0 ∗ semVal (thr d L, SemLoc.dma cc10_scratch7.sem) 0 ∗ R)
def runPost (R : sProp 𝕄) : sProp 𝕄 :=
    iprop(bigSep (Finset.range 18) (xP d L fx) ∗ bigSep (Finset.range 18) (oQ d L fx)
            ∗ (∃ g, (a4).view.loc (thr d L) ↦{fullShare} g) ∗ (∃ g, (a5).view.loc (thr d L) ↦{fullShare} g)
            ∗ (∃ g, (a6).view.loc (thr d L) ↦{fullShare} g) ∗ (∃ g, (a7).view.loc (thr d L) ↦{fullShare} g)
            ∗ semVal (thr d L, SemLoc.dma cc10_scratch4.sem) 0 ∗ semVal (thr d L, SemLoc.dma cc10_scratch5.sem) 0
            ∗ semVal (thr d L, SemLoc.dma cc10_scratch6.sem) 0 ∗ semVal (thr d L, SemLoc.dma cc10_scratch7.sem) 0
            ∗ (∃ W', ⌜∀ p ∈ W', p ∈ W ∨ p.2 = none⌝ ∗ owes (thr d L) O W') ∗ R)

set_option maxHeartbeats 16000000 in
/-- The task's run: from its pieces of the argument row and of the result, the four staging buffers and the four
    semaphores at zero, to the same with every piece of the result holding the row's elements. -/
theorem tile_run (R : sProp 𝕄) :
    runPre d L O W fx R
      ⊢ wp frame (wpE (defs₀ (F := F)) 𝒱₀ (thr d L) none) Set.univ
          (cc10_sc_group L xtW (Memref.isWhole_whole _) oW (Memref.isWhole_whole _) a4 (Memref.isWhole_whole _) a5 (Memref.isWhole_whole _)
            a6 (Memref.isWhole_whole _) a7 (Memref.isWhole_whole _) cc10_scratch4 cc10_scratch5 cc10_scratch6 cc10_scratch7)
          fun _ => runPost d L O W fx R := by
  unfold runPre runPost
  have v0 : valid L 0 := Or.inl (by omega)
  have v1 : valid L 1 := Or.inl (by omega)
  have k10_h7 : k10_cond7 L = 1#1 := cond7_iff L
  iintro ⟨#Hmw, HO, HX, HOut, ⟨%g4, H4⟩, ⟨%g5, H5⟩, ⟨%g6, H6⟩, ⟨%g7, H7⟩, Hs8, Hs9, Hs10, Hs11, HR⟩
  ihave HX := (Entails.of_eq (xRange_split d L fx v0 v1)) $$ HX
  icases HX with ⟨X0, X1, HX⟩
  ihave X0 := (Entails.of_eq (in_congr d L (off_in0 L v0).symm (in_inb L _) (k10_off1_inb L 0) fx)) $$ X0
  ihave X1 := (Entails.of_eq (in_congr d L (off_in1 L v1).symm (in_inb L _) (k10_off1_inb L 1) fx)) $$ X1
  sl_unfold [cc10_sc_group]
  sl_exec
  ihave S8 := (fl_inV d L fx (off_in0 L v0) (k10_off1_inb L 0) v0 a4 cc10_scratch4.sem) $$ [Hs8]
  · iexists _, _
    isplitr
    rotate_left
    · iexact Hs8
    ipureintro; intro y; rfl
  ihave S9 := (fl_inV d L fx (off_in1 L v1) (k10_off1_inb L 1) v1 a5 cc10_scratch5.sem) $$ [Hs9]
  · iexists _, _
    isplitr
    rotate_left
    · iexact Hs9
    ipureintro; intro y; rfl
  sl_for (invV d L O W fx) $$ [HO HX HOut S8 S9 H6 H7 Hs10 Hs11]
  case region =>
    intro (k : Fin k10_t1_loop.trips) acc
    have hk : k.val < 8 := Nat.lt_of_lt_of_eq k.isLt trips1
    unfold invV
    iintro ⟨#Hmw, ⟨%W', %hW', HO⟩, HX, HOut, S8, S10, S9, S11⟩
    by_cases hk1 : 1 ≤ k.val
    · by_cases v3 : valid L (2 * k.val + 3)
      · -- the generic trip: both drains, both pieces worked, both next fetches issued
        have hk6 : k.val ≤ 6 := by unfold valid at v3; omega
        have k10_h1 : k10_cond1 k = 1#1 := (cond1_iff k).mpr (by omega)
        have k10_h2 : k10_cond2 L k = 1#1 := cond2_iff L k
        have k10_h3 : k10_cond3 L k = 1#1 := (cond3_iff L k).mpr (by omega)
        have k10_h4 : k10_cond4 k = 1#1 := (cond4_iff k).mpr (by omega)
        have k10_h5 : k10_cond5 L k = 1#1 := (cond5_iff L k).mpr (by first | (unfold valid big at *; omega) | (unfold big at *; omega) | omega)
        have k10_h6 : k10_cond6 L k = 1#1 := (cond6_iff L k).mpr (by first | (unfold valid big at *; omega) | (unfold big at *; omega) | omega)
        have v0 : valid L (2 * k.val) := by unfold valid big at *; omega
        have v1 : valid L (2 * k.val + 1) := by unfold valid big at *; omega
        have v2 : valid L (2 * k.val + 2) := by unfold valid big at *; omega
        have v3' : valid L (2 * k.val + 3) := by unfold valid big at *; omega
        have hm0 : 2 ≤ 2 * k.val ∧ valid L (2 * k.val - 2) := ⟨by omega, by unfold valid big at *; omega⟩
        have hm1 : 2 ≤ 2 * k.val + 1 ∧ valid L (2 * k.val + 1 - 2) := ⟨by omega, by unfold valid big at *; omega⟩
        ihave S8 := (Entails.of_eq (inSlotV_pos d L fx v0)) $$ S8
        icases S8 with ⟨%g4, %hin4, F8⟩
        ihave S9 := (Entails.of_eq (inSlotV_pos d L fx v1)) $$ S9
        icases S9 with ⟨%g5, %hin5, F9⟩
        ihave S10 := (Entails.of_eq (outSlotV_pos d L fx hm0)) $$ S10
        icases S10 with ⟨%g6, F10, R6⟩
        ihave S11 := (Entails.of_eq (outSlotV_pos d L fx hm1)) $$ S11
        icases S11 with ⟨%g7, F11, R7⟩
        ihave HX := (Entails.of_eq (xSet_out (xP d L fx) k.val hk)) $$ HX
        icases HX with ⟨X2, X3, HX⟩
        ihave X2 := (Entails.of_eq (xP_pos d L fx v2)) $$ X2
        ihave X2 := (Entails.of_eq (in_congr d L (off_6 L k v2).symm (in_inb L _) (k10_off6_inb L k k10_h3) fx)) $$ X2
        ihave X3 := (Entails.of_eq (xP_pos d L fx v3')) $$ X3
        ihave X3 := (Entails.of_eq (in_congr d L (off_11 L k v3').symm (in_inb L _) (k10_off11_inb L k k10_h6) fx)) $$ X3
        ihave HOut := (Entails.of_eq (oSet_out (oMix d L fx k.val) k.val hk)) $$ HOut
        icases HOut with ⟨Y0, Y1, HOut⟩
        ihave Y0 := (Entails.of_eq ((oMix_ge d L fx (t := k.val) (n := 2 * k.val) (by omega)).trans (oP_pos (F := F) d L v0))) $$ Y0
        icases Y0 with ⟨%f0, Y0⟩
        ihave Y0 := (Entails.of_eq (out_congr d L (off_5 L k v0).symm (out_inb L _) (k10_off5_inb L k k10_h2) f0)) $$ Y0
        ihave Y1 := (Entails.of_eq ((oMix_ge d L fx (t := k.val) (n := 2 * k.val + 1) (by omega)).trans (oP_pos (F := F) d L v1))) $$ Y1
        icases Y1 with ⟨%f1, Y1⟩
        ihave Y1 := (Entails.of_eq (out_congr d L (off_10 L k v1).symm (out_inb L _) (k10_off10_inb L k k10_h5) f1)) $$ Y1
        sl_exec
        sl_for (laneV0 d L g4) $$ [F8_dst R6]
        case region =>
          intro (j : Fin k10_t2_loop.trips) _
          unfold laneV0
          iintro ⟨HA, %g, HB, %hl⟩
          sl_exec
          sl_step
          isplitl [HA]; · iexact HA
          iexists _; isplitl [HB]; · iexact HB
          ipureintro; exact lanes_step d L a4 a6 g4 g j _ _ hl
        · unfold laneV0
          isplitl [F8_dst]; · iexact F8_dst
          iexists _; isplitl [R6]; · iexact R6
          ipureintro; exact lanes_zero d L a4 a6 g4 _
        iintro %_ HI
        unfold laneV0
        icases HI with ⟨H4, %g6', H6, %hl6⟩
        have hl6 : Lanes d L a4 a6 g4 g6' 200 := Eq.mp (congrArg (Lanes d L a4 a6 g4 g6') trips2) hl6
        sl_exec
        sl_for (laneV1 d L g5) $$ [F9_dst R7]
        case region =>
          intro (j : Fin k10_t3_loop.trips) _
          unfold laneV1
          iintro ⟨HA, %g, HB, %hl⟩
          sl_exec
          sl_step
          isplitl [HA]; · iexact HA
          iexists _; isplitl [HB]; · iexact HB
          ipureintro; exact lanes_step' d L a5 a7 g5 g j _ _ hl
        · unfold laneV1
          isplitl [F9_dst]; · iexact F9_dst
          iexists _; isplitl [R7]; · iexact R7
          ipureintro; exact lanes_zero d L a5 a7 g5 _
        iintro %_ HI
        unfold laneV1
        icases HI with ⟨H5, %g7', H7, %hl7⟩
        have hl7 : Lanes d L a5 a7 g5 g7' 200 := Eq.mp (congrArg (Lanes d L a5 a7 g5 g7') trips3) hl7
        sl_exec
        sl_step
        isplitr; · iexact Hmw
        isplitl [HO]
        · iexists _; isplitr
          rotate_left
          · iexact HO
          ipureintro; intro p hp
          rcases Finset.mem_insert.mp hp with rfl | hp
          · exact .inr rfl
          rcases Finset.mem_insert.mp hp with rfl | hp
          · exact .inr rfl
          rcases Finset.mem_insert.mp hp with rfl | hp
          · exact .inr rfl
          rcases Finset.mem_insert.mp hp with rfl | hp
          · exact .inr rfl
          exact hW' p hp
        isplitl [HX F8_src F9_src]
        · iapply (Entails.of_eq (xSet_in (xP d L fx) k.val hk).symm)
          isplitl [F8_src]; · iapply (Entails.of_eq (xP_pos d L fx v0).symm); iexact F8_src
          isplitl [F9_src]; · iapply (Entails.of_eq (xP_pos d L fx v1).symm); iexact F9_src
          iexact HX
        isplitl [HOut F10_dst F11_dst]
        · iapply (Entails.of_eq (oSet_in (oMix d L fx (k.val + 1)) k.val hk (by omega)).symm)
          isplitl [F10_dst]; · iapply (Entails.of_eq ((oMix_lt d L fx (t := k.val + 1) (n := 2 * k.val - 2) (by omega)).trans (oQ_pos d L fx hm0.2)).symm); iexact F10_dst
          isplitl [F11_dst]
          · iapply (Entails.of_eq ((oMix_lt d L fx (t := k.val + 1) (n := 2 * k.val - 1) (by omega)).trans (oQ_pos d L fx (n := 2 * k.val - 1) (by have := hm1.2; rwa [show 2 * k.val + 1 - 2 = 2 * k.val - 1 by omega] at this))).symm)
            iapply (Entails.of_eq (congrArg (oqPiece d L fx) (show 2 * k.val + 1 - 2 = 2 * k.val - 1 by omega))); iexact F11_dst
          iapply (Entails.of_eq (oMix_core d L fx k.val)); iexact HOut
        isplitl [F8]
        · iapply (Entails.of_eq (congrArg (inSlotV d L fx a4 cc10_scratch4.sem) (show 2 * k.val + 2 = 2 * (k.val + 1) by ring)))
          iapply (fl_inV d L fx (off_6 L k v2) (k10_off6_inb L k k10_h3) v2 a4 cc10_scratch4.sem); iexists _, _
          isplitr
          rotate_left
          · iexact F8
          ipureintro; intro y; rfl
        isplitl [F10 H6]
        · iapply (Entails.of_eq (congrArg (outSlotV d L fx a6 cc10_scratch6.sem) (show 2 * k.val + 2 = 2 * (k.val + 1) by ring)))
          iapply (fl_outV d L fx (off_5 L k v0) (k10_off5_inb L k k10_h2) v0 a4 a6 cc10_scratch6.sem f0 g4 g6' hl6 hin4); iexists _
          isplitr
          rotate_left
          · isplitl [F10]; · iexact F10
            iexact H6
          ipureintro; intro y; rfl
        isplitl [F9]
        · iapply (Entails.of_eq (congrArg (inSlotV d L fx a5 cc10_scratch5.sem) (show 2 * k.val + 3 = 2 * (k.val + 1) + 1 by ring)))
          iapply (fl_inV d L fx (off_11 L k v3') (k10_off11_inb L k k10_h6) v3' a5 cc10_scratch5.sem); iexists _, _
          isplitr
          rotate_left
          · iexact F9
          ipureintro; intro y; rfl
        · iapply (Entails.of_eq (congrArg (outSlotV d L fx a7 cc10_scratch7.sem) (show 2 * k.val + 1 + 2 = 2 * (k.val + 1) + 1 by ring)))
          iapply (fl_outV d L fx (off_10 L k v1) (k10_off10_inb L k k10_h5) v1 a5 a7 cc10_scratch7.sem f1 g5 g7' hl7 hin5); iexists _
          isplitr
          rotate_left
          · isplitl [F11]; · iexact F11
            iexact H7
          ipureintro; intro y; rfl
      · by_cases h6 : k.val = 6
        · have hb : ¬ big L := fun hb => v3 (Or.inr ⟨by omega, hb⟩)
          -- trip 6 of a tile with fifteen pieces: no sixteenth piece to fetch
          have k10_h1 : k10_cond1 k = 1#1 := (cond1_iff k).mpr (by omega)
          have k10_h2 : k10_cond2 L k = 1#1 := cond2_iff L k
          have k10_h3 : k10_cond3 L k = 1#1 := (cond3_iff L k).mpr (by omega)
          have k10_h4 : k10_cond4 k = 1#1 := (cond4_iff k).mpr (by omega)
          have k10_h5 : k10_cond5 L k = 1#1 := (cond5_iff L k).mpr (by first | (unfold valid big at *; omega) | (unfold big at *; omega) | omega)
          have k10_h6 : ¬ k10_cond6 L k = 1#1 := fun h => absurd ((cond6_iff L k).mp h) (by first | (unfold valid big at *; omega) | (unfold big at *; omega) | omega)
          have v0 : valid L (2 * k.val) := by unfold valid big at *; omega
          have v1 : valid L (2 * k.val + 1) := by unfold valid big at *; omega
          have v2 : valid L (2 * k.val + 2) := by unfold valid big at *; omega
          have v3' : ¬ valid L (2 * k.val + 3) := by unfold valid big at *; omega
          have hm0 : 2 ≤ 2 * k.val ∧ valid L (2 * k.val - 2) := ⟨by omega, by unfold valid big at *; omega⟩
          have hm1 : 2 ≤ 2 * k.val + 1 ∧ valid L (2 * k.val + 1 - 2) := ⟨by omega, by unfold valid big at *; omega⟩
          ihave S8 := (Entails.of_eq (inSlotV_pos d L fx v0)) $$ S8
          icases S8 with ⟨%g4, %hin4, F8⟩
          ihave S9 := (Entails.of_eq (inSlotV_pos d L fx v1)) $$ S9
          icases S9 with ⟨%g5, %hin5, F9⟩
          ihave S10 := (Entails.of_eq (outSlotV_pos d L fx hm0)) $$ S10
          icases S10 with ⟨%g6, F10, R6⟩
          ihave S11 := (Entails.of_eq (outSlotV_pos d L fx hm1)) $$ S11
          icases S11 with ⟨%g7, F11, R7⟩
          ihave HX := (Entails.of_eq (xSet_out (xP d L fx) k.val hk)) $$ HX
          icases HX with ⟨X2, -, HX⟩
          ihave X2 := (Entails.of_eq (xP_pos d L fx v2)) $$ X2
          ihave X2 := (Entails.of_eq (in_congr d L (off_6 L k v2).symm (in_inb L _) (k10_off6_inb L k k10_h3) fx)) $$ X2
          ihave HOut := (Entails.of_eq (oSet_out (oMix d L fx k.val) k.val hk)) $$ HOut
          icases HOut with ⟨Y0, Y1, HOut⟩
          ihave Y0 := (Entails.of_eq ((oMix_ge d L fx (t := k.val) (n := 2 * k.val) (by omega)).trans (oP_pos (F := F) d L v0))) $$ Y0
          icases Y0 with ⟨%f0, Y0⟩
          ihave Y0 := (Entails.of_eq (out_congr d L (off_5 L k v0).symm (out_inb L _) (k10_off5_inb L k k10_h2) f0)) $$ Y0
          ihave Y1 := (Entails.of_eq ((oMix_ge d L fx (t := k.val) (n := 2 * k.val + 1) (by omega)).trans (oP_pos (F := F) d L v1))) $$ Y1
          icases Y1 with ⟨%f1, Y1⟩
          ihave Y1 := (Entails.of_eq (out_congr d L (off_10 L k v1).symm (out_inb L _) (k10_off10_inb L k k10_h5) f1)) $$ Y1
          sl_exec
          sl_for (laneV0 d L g4) $$ [F8_dst R6]
          case region =>
            intro (j : Fin k10_t2_loop.trips) _
            unfold laneV0
            iintro ⟨HA, %g, HB, %hl⟩
            sl_exec
            sl_step
            isplitl [HA]; · iexact HA
            iexists _; isplitl [HB]; · iexact HB
            ipureintro; exact lanes_step d L a4 a6 g4 g j _ _ hl
          · unfold laneV0
            isplitl [F8_dst]; · iexact F8_dst
            iexists _; isplitl [R6]; · iexact R6
            ipureintro; exact lanes_zero d L a4 a6 g4 _
          iintro %_ HI
          unfold laneV0
          icases HI with ⟨H4, %g6', H6, %hl6⟩
          have hl6 : Lanes d L a4 a6 g4 g6' 200 := Eq.mp (congrArg (Lanes d L a4 a6 g4 g6') trips2) hl6
          sl_exec
          sl_for (laneV1 d L g5) $$ [F9_dst R7]
          case region =>
            intro (j : Fin k10_t3_loop.trips) _
            unfold laneV1
            iintro ⟨HA, %g, HB, %hl⟩
            sl_exec
            sl_step
            isplitl [HA]; · iexact HA
            iexists _; isplitl [HB]; · iexact HB
            ipureintro; exact lanes_step' d L a5 a7 g5 g j _ _ hl
          · unfold laneV1
            isplitl [F9_dst]; · iexact F9_dst
            iexists _; isplitl [R7]; · iexact R7
            ipureintro; exact lanes_zero d L a5 a7 g5 _
          iintro %_ HI
          unfold laneV1
          icases HI with ⟨H5, %g7', H7, %hl7⟩
          have hl7 : Lanes d L a5 a7 g5 g7' 200 := Eq.mp (congrArg (Lanes d L a5 a7 g5 g7') trips3) hl7
          sl_exec
          sl_step
          isplitr; · iexact Hmw
          isplitl [HO]
          · iexists _; isplitr
            rotate_left
            · iexact HO
            ipureintro; intro p hp
            rcases Finset.mem_insert.mp hp with rfl | hp
            · exact .inr rfl
            rcases Finset.mem_insert.mp hp with rfl | hp
            · exact .inr rfl
            rcases Finset.mem_insert.mp hp with rfl | hp
            · exact .inr rfl
            rcases Finset.mem_insert.mp hp with rfl | hp
            · exact .inr rfl
            exact hW' p hp
          isplitl [HX F8_src F9_src]
          · iapply (Entails.of_eq (xSet_in (xP d L fx) k.val hk).symm)
            isplitl [F8_src]; · iapply (Entails.of_eq (xP_pos d L fx v0).symm); iexact F8_src
            isplitl [F9_src]; · iapply (Entails.of_eq (xP_pos d L fx v1).symm); iexact F9_src
            iexact HX
          isplitl [HOut F10_dst F11_dst]
          · iapply (Entails.of_eq (oSet_in (oMix d L fx (k.val + 1)) k.val hk (by omega)).symm)
            isplitl [F10_dst]; · iapply (Entails.of_eq ((oMix_lt d L fx (t := k.val + 1) (n := 2 * k.val - 2) (by omega)).trans (oQ_pos d L fx hm0.2)).symm); iexact F10_dst
            isplitl [F11_dst]
            · iapply (Entails.of_eq ((oMix_lt d L fx (t := k.val + 1) (n := 2 * k.val - 1) (by omega)).trans (oQ_pos d L fx (n := 2 * k.val - 1) (by have := hm1.2; rwa [show 2 * k.val + 1 - 2 = 2 * k.val - 1 by omega] at this))).symm)
              iapply (Entails.of_eq (congrArg (oqPiece d L fx) (show 2 * k.val + 1 - 2 = 2 * k.val - 1 by omega))); iexact F11_dst
            iapply (Entails.of_eq (oMix_core d L fx k.val)); iexact HOut
          isplitl [F8]
          · iapply (Entails.of_eq (congrArg (inSlotV d L fx a4 cc10_scratch4.sem) (show 2 * k.val + 2 = 2 * (k.val + 1) by ring)))
            iapply (fl_inV d L fx (off_6 L k v2) (k10_off6_inb L k k10_h3) v2 a4 cc10_scratch4.sem); iexists _, _
            isplitr
            rotate_left
            · iexact F8
            ipureintro; intro y; rfl
          isplitl [F10 H6]
          · iapply (Entails.of_eq (congrArg (outSlotV d L fx a6 cc10_scratch6.sem) (show 2 * k.val + 2 = 2 * (k.val + 1) by ring)))
            iapply (fl_outV d L fx (off_5 L k v0) (k10_off5_inb L k k10_h2) v0 a4 a6 cc10_scratch6.sem f0 g4 g6' hl6 hin4); iexists _
            isplitr
            rotate_left
            · isplitl [F10]; · iexact F10
              iexact H6
            ipureintro; intro y; rfl
          isplitl [H5 F9]
          · iapply (Entails.of_eq (congrArg (inSlotV d L fx a5 cc10_scratch5.sem) (show 2 * k.val + 3 = 2 * (k.val + 1) + 1 by ring)))
            iapply (Entails.of_eq (inSlotV_neg d L fx v3').symm)
            isplitl [H5]; · iexists _; iexact H5
            iexact F9
          · iapply (Entails.of_eq (congrArg (outSlotV d L fx a7 cc10_scratch7.sem) (show 2 * k.val + 1 + 2 = 2 * (k.val + 1) + 1 by ring)))
            iapply (fl_outV d L fx (off_10 L k v1) (k10_off10_inb L k k10_h5) v1 a5 a7 cc10_scratch7.sem f1 g5 g7' hl7 hin5); iexists _
            isplitr
            rotate_left
            · isplitl [F11]; · iexact F11
              iexact H7
            ipureintro; intro y; rfl
        · have h7 : k.val = 7 := by unfold valid at v3; omega
          by_cases hb : big L
          · -- the last trip of a tile with sixteen pieces: nothing more to fetch
            have k10_h1 : k10_cond1 k = 1#1 := (cond1_iff k).mpr (by omega)
            have k10_h2 : k10_cond2 L k = 1#1 := cond2_iff L k
            have k10_h3 : ¬ k10_cond3 L k = 1#1 := fun h => absurd ((cond3_iff L k).mp h) (by omega)
            have k10_h4 : k10_cond4 k = 1#1 := (cond4_iff k).mpr (by omega)
            have k10_h5 : k10_cond5 L k = 1#1 := (cond5_iff L k).mpr (by first | (unfold valid big at *; omega) | (unfold big at *; omega) | omega)
            have k10_h6 : ¬ k10_cond6 L k = 1#1 := fun h => absurd ((cond6_iff L k).mp h) (by first | (unfold valid big at *; omega) | (unfold big at *; omega) | omega)
            have v0 : valid L (2 * k.val) := by unfold valid big at *; omega
            have v1 : valid L (2 * k.val + 1) := by unfold valid big at *; omega
            have v2 : ¬ valid L (2 * k.val + 2) := by unfold valid big at *; omega
            have v3' : ¬ valid L (2 * k.val + 3) := by unfold valid big at *; omega
            have hm0 : 2 ≤ 2 * k.val ∧ valid L (2 * k.val - 2) := ⟨by omega, by unfold valid big at *; omega⟩
            have hm1 : 2 ≤ 2 * k.val + 1 ∧ valid L (2 * k.val + 1 - 2) := ⟨by omega, by unfold valid big at *; omega⟩
            ihave S8 := (Entails.of_eq (inSlotV_pos d L fx v0)) $$ S8
            icases S8 with ⟨%g4, %hin4, F8⟩
            ihave S9 := (Entails.of_eq (inSlotV_pos d L fx v1)) $$ S9
            icases S9 with ⟨%g5, %hin5, F9⟩
            ihave S10 := (Entails.of_eq (outSlotV_pos d L fx hm0)) $$ S10
            icases S10 with ⟨%g6, F10, R6⟩
            ihave S11 := (Entails.of_eq (outSlotV_pos d L fx hm1)) $$ S11
            icases S11 with ⟨%g7, F11, R7⟩
            ihave HX := (Entails.of_eq (xSet_out (xP d L fx) k.val hk)) $$ HX
            icases HX with ⟨-, -, HX⟩
            ihave HOut := (Entails.of_eq (oSet_out (oMix d L fx k.val) k.val hk)) $$ HOut
            icases HOut with ⟨Y0, Y1, HOut⟩
            ihave Y0 := (Entails.of_eq ((oMix_ge d L fx (t := k.val) (n := 2 * k.val) (by omega)).trans (oP_pos (F := F) d L v0))) $$ Y0
            icases Y0 with ⟨%f0, Y0⟩
            ihave Y0 := (Entails.of_eq (out_congr d L (off_5 L k v0).symm (out_inb L _) (k10_off5_inb L k k10_h2) f0)) $$ Y0
            ihave Y1 := (Entails.of_eq ((oMix_ge d L fx (t := k.val) (n := 2 * k.val + 1) (by omega)).trans (oP_pos (F := F) d L v1))) $$ Y1
            icases Y1 with ⟨%f1, Y1⟩
            ihave Y1 := (Entails.of_eq (out_congr d L (off_10 L k v1).symm (out_inb L _) (k10_off10_inb L k k10_h5) f1)) $$ Y1
            sl_exec
            sl_for (laneV0 d L g4) $$ [F8_dst R6]
            case region =>
              intro (j : Fin k10_t2_loop.trips) _
              unfold laneV0
              iintro ⟨HA, %g, HB, %hl⟩
              sl_exec
              sl_step
              isplitl [HA]; · iexact HA
              iexists _; isplitl [HB]; · iexact HB
              ipureintro; exact lanes_step d L a4 a6 g4 g j _ _ hl
            · unfold laneV0
              isplitl [F8_dst]; · iexact F8_dst
              iexists _; isplitl [R6]; · iexact R6
              ipureintro; exact lanes_zero d L a4 a6 g4 _
            iintro %_ HI
            unfold laneV0
            icases HI with ⟨H4, %g6', H6, %hl6⟩
            have hl6 : Lanes d L a4 a6 g4 g6' 200 := Eq.mp (congrArg (Lanes d L a4 a6 g4 g6') trips2) hl6
            sl_exec
            sl_for (laneV1 d L g5) $$ [F9_dst R7]
            case region =>
              intro (j : Fin k10_t3_loop.trips) _
              unfold laneV1
              iintro ⟨HA, %g, HB, %hl⟩
              sl_exec
              sl_step
              isplitl [HA]; · iexact HA
              iexists _; isplitl [HB]; · iexact HB
              ipureintro; exact lanes_step' d L a5 a7 g5 g j _ _ hl
            · unfold laneV1
              isplitl [F9_dst]; · iexact F9_dst
              iexists _; isplitl [R7]; · iexact R7
              ipureintro; exact lanes_zero d L a5 a7 g5 _
            iintro %_ HI
            unfold laneV1
            icases HI with ⟨H5, %g7', H7, %hl7⟩
            have hl7 : Lanes d L a5 a7 g5 g7' 200 := Eq.mp (congrArg (Lanes d L a5 a7 g5 g7') trips3) hl7
            sl_exec
            sl_step
            isplitr; · iexact Hmw
            isplitl [HO]
            · iexists _; isplitr
              rotate_left
              · iexact HO
              ipureintro; intro p hp
              rcases Finset.mem_insert.mp hp with rfl | hp
              · exact .inr rfl
              rcases Finset.mem_insert.mp hp with rfl | hp
              · exact .inr rfl
              rcases Finset.mem_insert.mp hp with rfl | hp
              · exact .inr rfl
              rcases Finset.mem_insert.mp hp with rfl | hp
              · exact .inr rfl
              exact hW' p hp
            isplitl [HX F8_src F9_src]
            · iapply (Entails.of_eq (xSet_in (xP d L fx) k.val hk).symm)
              isplitl [F8_src]; · iapply (Entails.of_eq (xP_pos d L fx v0).symm); iexact F8_src
              isplitl [F9_src]; · iapply (Entails.of_eq (xP_pos d L fx v1).symm); iexact F9_src
              iexact HX
            isplitl [HOut F10_dst F11_dst]
            · iapply (Entails.of_eq (oSet_in (oMix d L fx (k.val + 1)) k.val hk (by omega)).symm)
              isplitl [F10_dst]; · iapply (Entails.of_eq ((oMix_lt d L fx (t := k.val + 1) (n := 2 * k.val - 2) (by omega)).trans (oQ_pos d L fx hm0.2)).symm); iexact F10_dst
              isplitl [F11_dst]
              · iapply (Entails.of_eq ((oMix_lt d L fx (t := k.val + 1) (n := 2 * k.val - 1) (by omega)).trans (oQ_pos d L fx (n := 2 * k.val - 1) (by have := hm1.2; rwa [show 2 * k.val + 1 - 2 = 2 * k.val - 1 by omega] at this))).symm)
                iapply (Entails.of_eq (congrArg (oqPiece d L fx) (show 2 * k.val + 1 - 2 = 2 * k.val - 1 by omega))); iexact F11_dst
              iapply (Entails.of_eq (oMix_core d L fx k.val)); iexact HOut
            isplitl [H4 F8]
            · iapply (Entails.of_eq (congrArg (inSlotV d L fx a4 cc10_scratch4.sem) (show 2 * k.val + 2 = 2 * (k.val + 1) by ring)))
              iapply (Entails.of_eq (inSlotV_neg d L fx v2).symm)
              isplitl [H4]; · iexists _; iexact H4
              iexact F8
            isplitl [F10 H6]
            · iapply (Entails.of_eq (congrArg (outSlotV d L fx a6 cc10_scratch6.sem) (show 2 * k.val + 2 = 2 * (k.val + 1) by ring)))
              iapply (fl_outV d L fx (off_5 L k v0) (k10_off5_inb L k k10_h2) v0 a4 a6 cc10_scratch6.sem f0 g4 g6' hl6 hin4); iexists _
              isplitr
              rotate_left
              · isplitl [F10]; · iexact F10
                iexact H6
              ipureintro; intro y; rfl
            isplitl [H5 F9]
            · iapply (Entails.of_eq (congrArg (inSlotV d L fx a5 cc10_scratch5.sem) (show 2 * k.val + 3 = 2 * (k.val + 1) + 1 by ring)))
              iapply (Entails.of_eq (inSlotV_neg d L fx v3').symm)
              isplitl [H5]; · iexists _; iexact H5
              iexact F9
            · iapply (Entails.of_eq (congrArg (outSlotV d L fx a7 cc10_scratch7.sem) (show 2 * k.val + 1 + 2 = 2 * (k.val + 1) + 1 by ring)))
              iapply (fl_outV d L fx (off_10 L k v1) (k10_off10_inb L k k10_h5) v1 a5 a7 cc10_scratch7.sem f1 g5 g7' hl7 hin5); iexists _
              isplitr
              rotate_left
              · isplitl [F11]; · iexact F11
                iexact H7
              ipureintro; intro y; rfl
          · -- the last trip of a tile with fifteen pieces: the second slot only drains
            have k10_h1 : k10_cond1 k = 1#1 := (cond1_iff k).mpr (by omega)
            have k10_h2 : k10_cond2 L k = 1#1 := cond2_iff L k
            have k10_h3 : ¬ k10_cond3 L k = 1#1 := fun h => absurd ((cond3_iff L k).mp h) (by omega)
            have k10_h4 : k10_cond4 k = 1#1 := (cond4_iff k).mpr (by omega)
            have k10_h5 : ¬ k10_cond5 L k = 1#1 := fun h => absurd ((cond5_iff L k).mp h) (by first | (unfold valid big at *; omega) | (unfold big at *; omega) | omega)
            have k10_h6 : ¬ k10_cond6 L k = 1#1 := fun h => absurd ((cond6_iff L k).mp h) (by first | (unfold valid big at *; omega) | (unfold big at *; omega) | omega)
            have v0 : valid L (2 * k.val) := by unfold valid big at *; omega
            have v1 : ¬ valid L (2 * k.val + 1) := by unfold valid big at *; omega
            have v2 : ¬ valid L (2 * k.val + 2) := by unfold valid big at *; omega
            have v3' : ¬ valid L (2 * k.val + 3) := by unfold valid big at *; omega
            have hm0 : 2 ≤ 2 * k.val ∧ valid L (2 * k.val - 2) := ⟨by omega, by unfold valid big at *; omega⟩
            have hm1 : 2 ≤ 2 * k.val + 1 ∧ valid L (2 * k.val + 1 - 2) := ⟨by omega, by unfold valid big at *; omega⟩
            ihave S8 := (Entails.of_eq (inSlotV_pos d L fx v0)) $$ S8
            icases S8 with ⟨%g4, %hin4, F8⟩
            ihave S9 := (Entails.of_eq (inSlotV_neg d L fx v1)) $$ S9
            icases S9 with ⟨⟨%g5, H5⟩, F9⟩
            ihave S10 := (Entails.of_eq (outSlotV_pos d L fx hm0)) $$ S10
            icases S10 with ⟨%g6, F10, R6⟩
            ihave S11 := (Entails.of_eq (outSlotV_pos d L fx hm1)) $$ S11
            icases S11 with ⟨%g7, F11, R7⟩
            ihave HX := (Entails.of_eq (xSet_out (xP d L fx) k.val hk)) $$ HX
            icases HX with ⟨-, -, HX⟩
            ihave HOut := (Entails.of_eq (oSet_out (oMix d L fx k.val) k.val hk)) $$ HOut
            icases HOut with ⟨Y0, -, HOut⟩
            ihave Y0 := (Entails.of_eq ((oMix_ge d L fx (t := k.val) (n := 2 * k.val) (by omega)).trans (oP_pos (F := F) d L v0))) $$ Y0
            icases Y0 with ⟨%f0, Y0⟩
            ihave Y0 := (Entails.of_eq (out_congr d L (off_5 L k v0).symm (out_inb L _) (k10_off5_inb L k k10_h2) f0)) $$ Y0
            sl_exec
            sl_for (laneV0 d L g4) $$ [F8_dst R6]
            case region =>
              intro (j : Fin k10_t2_loop.trips) _
              unfold laneV0
              iintro ⟨HA, %g, HB, %hl⟩
              sl_exec
              sl_step
              isplitl [HA]; · iexact HA
              iexists _; isplitl [HB]; · iexact HB
              ipureintro; exact lanes_step d L a4 a6 g4 g j _ _ hl
            · unfold laneV0
              isplitl [F8_dst]; · iexact F8_dst
              iexists _; isplitl [R6]; · iexact R6
              ipureintro; exact lanes_zero d L a4 a6 g4 _
            iintro %_ HI
            unfold laneV0
            icases HI with ⟨H4, %g6', H6, %hl6⟩
            have hl6 : Lanes d L a4 a6 g4 g6' 200 := Eq.mp (congrArg (Lanes d L a4 a6 g4 g6') trips2) hl6
            sl_exec
            sl_step
            isplitr; · iexact Hmw
            isplitl [HO]
            · iexists _; isplitr
              rotate_left
              · iexact HO
              ipureintro; intro p hp
              rcases Finset.mem_insert.mp hp with rfl | hp
              · exact .inr rfl
              rcases Finset.mem_insert.mp hp with rfl | hp
              · exact .inr rfl
              rcases Finset.mem_insert.mp hp with rfl | hp
              · exact .inr rfl
              exact hW' p hp
            isplitl [HX F8_src]
            · iapply (Entails.of_eq (xSet_in (xP d L fx) k.val hk).symm)
              isplitl [F8_src]; · iapply (Entails.of_eq (xP_pos d L fx v0).symm); iexact F8_src
              isplitr; · iapply (Entails.of_eq (xP_neg d L fx v1).symm); iempintro
              iexact HX
            isplitl [HOut F10_dst F11_dst]
            · iapply (Entails.of_eq (oSet_in (oMix d L fx (k.val + 1)) k.val hk (by omega)).symm)
              isplitl [F10_dst]; · iapply (Entails.of_eq ((oMix_lt d L fx (t := k.val + 1) (n := 2 * k.val - 2) (by omega)).trans (oQ_pos d L fx hm0.2)).symm); iexact F10_dst
              isplitl [F11_dst]
              · iapply (Entails.of_eq ((oMix_lt d L fx (t := k.val + 1) (n := 2 * k.val - 1) (by omega)).trans (oQ_pos d L fx (n := 2 * k.val - 1) (by have := hm1.2; rwa [show 2 * k.val + 1 - 2 = 2 * k.val - 1 by omega] at this))).symm)
                iapply (Entails.of_eq (congrArg (oqPiece d L fx) (show 2 * k.val + 1 - 2 = 2 * k.val - 1 by omega))); iexact F11_dst
              iapply (Entails.of_eq (oMix_core d L fx k.val)); iexact HOut
            isplitl [H4 F8]
            · iapply (Entails.of_eq (congrArg (inSlotV d L fx a4 cc10_scratch4.sem) (show 2 * k.val + 2 = 2 * (k.val + 1) by ring)))
              iapply (Entails.of_eq (inSlotV_neg d L fx v2).symm)
              isplitl [H4]; · iexists _; iexact H4
              iexact F8
            isplitl [F10 H6]
            · iapply (Entails.of_eq (congrArg (outSlotV d L fx a6 cc10_scratch6.sem) (show 2 * k.val + 2 = 2 * (k.val + 1) by ring)))
              iapply (fl_outV d L fx (off_5 L k v0) (k10_off5_inb L k k10_h2) v0 a4 a6 cc10_scratch6.sem f0 g4 g6' hl6 hin4); iexists _
              isplitr
              rotate_left
              · isplitl [F10]; · iexact F10
                iexact H6
              ipureintro; intro y; rfl
            isplitl [H5 F9]
            · iapply (Entails.of_eq (congrArg (inSlotV d L fx a5 cc10_scratch5.sem) (show 2 * k.val + 3 = 2 * (k.val + 1) + 1 by ring)))
              iapply (Entails.of_eq (inSlotV_neg d L fx v3').symm)
              isplitl [H5]; · iexists _; iexact H5
              iexact F9
            · iapply (Entails.of_eq (outSlotV_neg d L fx (m := 2 * (k.val + 1) + 1) (by intro h; apply v1; have := h.2; rwa [show 2 * (k.val + 1) + 1 - 2 = 2 * k.val + 1 by omega] at this)).symm)
              isplitl [R7]; · iexists _; iexact R7
              iexact F11
    · have hk0 : k.val = 0 := by omega
      -- the first trip: nothing to drain
      have k10_h1 : ¬ k10_cond1 k = 1#1 := fun h => absurd ((cond1_iff k).mp h) (by omega)
      have k10_h2 : k10_cond2 L k = 1#1 := cond2_iff L k
      have k10_h3 : k10_cond3 L k = 1#1 := (cond3_iff L k).mpr (by omega)
      have k10_h4 : ¬ k10_cond4 k = 1#1 := fun h => absurd ((cond4_iff k).mp h) (by omega)
      have k10_h5 : k10_cond5 L k = 1#1 := (cond5_iff L k).mpr (by first | (unfold valid big at *; omega) | (unfold big at *; omega) | omega)
      have k10_h6 : k10_cond6 L k = 1#1 := (cond6_iff L k).mpr (by first | (unfold valid big at *; omega) | (unfold big at *; omega) | omega)
      have v0 : valid L (2 * k.val) := by unfold valid big at *; omega
      have v1 : valid L (2 * k.val + 1) := by unfold valid big at *; omega
      have v2 : valid L (2 * k.val + 2) := by unfold valid big at *; omega
      have v3' : valid L (2 * k.val + 3) := by unfold valid big at *; omega
      have hm0 : ¬ (2 ≤ 2 * k.val ∧ valid L (2 * k.val - 2)) := by omega
      have hm1 : ¬ (2 ≤ 2 * k.val + 1 ∧ valid L (2 * k.val + 1 - 2)) := by omega
      ihave S8 := (Entails.of_eq (inSlotV_pos d L fx v0)) $$ S8
      icases S8 with ⟨%g4, %hin4, F8⟩
      ihave S9 := (Entails.of_eq (inSlotV_pos d L fx v1)) $$ S9
      icases S9 with ⟨%g5, %hin5, F9⟩
      ihave S10 := (Entails.of_eq (outSlotV_neg d L fx hm0)) $$ S10
      icases S10 with ⟨⟨%g6, R6⟩, F10⟩
      ihave S11 := (Entails.of_eq (outSlotV_neg d L fx hm1)) $$ S11
      icases S11 with ⟨⟨%g7, R7⟩, F11⟩
      ihave HX := (Entails.of_eq (xSet_out (xP d L fx) k.val hk)) $$ HX
      icases HX with ⟨X2, X3, HX⟩
      ihave X2 := (Entails.of_eq (xP_pos d L fx v2)) $$ X2
      ihave X2 := (Entails.of_eq (in_congr d L (off_6 L k v2).symm (in_inb L _) (k10_off6_inb L k k10_h3) fx)) $$ X2
      ihave X3 := (Entails.of_eq (xP_pos d L fx v3')) $$ X3
      ihave X3 := (Entails.of_eq (in_congr d L (off_11 L k v3').symm (in_inb L _) (k10_off11_inb L k k10_h6) fx)) $$ X3
      ihave HOut := (Entails.of_eq (oSet_out (oMix d L fx k.val) k.val hk)) $$ HOut
      icases HOut with ⟨Y0, Y1, HOut⟩
      ihave Y0 := (Entails.of_eq ((oMix_ge d L fx (t := k.val) (n := 2 * k.val) (by omega)).trans (oP_pos (F := F) d L v0))) $$ Y0
      icases Y0 with ⟨%f0, Y0⟩
      ihave Y0 := (Entails.of_eq (out_congr d L (off_5 L k v0).symm (out_inb L _) (k10_off5_inb L k k10_h2) f0)) $$ Y0
      ihave Y1 := (Entails.of_eq ((oMix_ge d L fx (t := k.val) (n := 2 * k.val + 1) (by omega)).trans (oP_pos (F := F) d L v1))) $$ Y1
      icases Y1 with ⟨%f1, Y1⟩
      ihave Y1 := (Entails.of_eq (out_congr d L (off_10 L k v1).symm (out_inb L _) (k10_off10_inb L k k10_h5) f1)) $$ Y1
      sl_exec
      sl_for (laneV0 d L g4) $$ [F8_dst R6]
      case region =>
        intro (j : Fin k10_t2_loop.trips) _
        unfold laneV0
        iintro ⟨HA, %g, HB, %hl⟩
        sl_exec
        sl_step
        isplitl [HA]; · iexact HA
        iexists _; isplitl [HB]; · iexact HB
        ipureintro; exact lanes_step d L a4 a6 g4 g j _ _ hl
      · unfold laneV0
        isplitl [F8_dst]; · iexact F8_dst
        iexists _; isplitl [R6]; · iexact R6
        ipureintro; exact lanes_zero d L a4 a6 g4 _
      iintro %_ HI
      unfold laneV0
      icases HI with ⟨H4, %g6', H6, %hl6⟩
      have hl6 : Lanes d L a4 a6 g4 g6' 200 := Eq.mp (congrArg (Lanes d L a4 a6 g4 g6') trips2) hl6
      sl_exec
      sl_for (laneV1 d L g5) $$ [F9_dst R7]
      case region =>
        intro (j : Fin k10_t3_loop.trips) _
        unfold laneV1
        iintro ⟨HA, %g, HB, %hl⟩
        sl_exec
        sl_step
        isplitl [HA]; · iexact HA
        iexists _; isplitl [HB]; · iexact HB
        ipureintro; exact lanes_step' d L a5 a7 g5 g j _ _ hl
      · unfold laneV1
        isplitl [F9_dst]; · iexact F9_dst
        iexists _; isplitl [R7]; · iexact R7
        ipureintro; exact lanes_zero d L a5 a7 g5 _
      iintro %_ HI
      unfold laneV1
      icases HI with ⟨H5, %g7', H7, %hl7⟩
      have hl7 : Lanes d L a5 a7 g5 g7' 200 := Eq.mp (congrArg (Lanes d L a5 a7 g5 g7') trips3) hl7
      sl_exec
      sl_step
      isplitr; · iexact Hmw
      isplitl [HO]
      · iexists _; isplitr
        rotate_left
        · iexact HO
        ipureintro; intro p hp
        rcases Finset.mem_insert.mp hp with rfl | hp
        · exact .inr rfl
        rcases Finset.mem_insert.mp hp with rfl | hp
        · exact .inr rfl
        exact hW' p hp
      isplitl [HX F8_src F9_src]
      · iapply (Entails.of_eq (xSet_in (xP d L fx) k.val hk).symm)
        isplitl [F8_src]; · iapply (Entails.of_eq (xP_pos d L fx v0).symm); iexact F8_src
        isplitl [F9_src]; · iapply (Entails.of_eq (xP_pos d L fx v1).symm); iexact F9_src
        iexact HX
      isplitl [HOut]
      · iapply (Entails.of_eq (congrArg (fun s => bigSep s (oMix d L fx (k.val + 1))) (show oCore k.val = oSet (k.val + 1) by rw [hk0]; decide)))
        iapply (Entails.of_eq (oMix_core d L fx k.val)); iexact HOut
      isplitl [F8]
      · iapply (Entails.of_eq (congrArg (inSlotV d L fx a4 cc10_scratch4.sem) (show 2 * k.val + 2 = 2 * (k.val + 1) by ring)))
        iapply (fl_inV d L fx (off_6 L k v2) (k10_off6_inb L k k10_h3) v2 a4 cc10_scratch4.sem); iexists _, _
        isplitr
        rotate_left
        · iexact F8
        ipureintro; intro y; rfl
      isplitl [F10 H6]
      · iapply (Entails.of_eq (congrArg (outSlotV d L fx a6 cc10_scratch6.sem) (show 2 * k.val + 2 = 2 * (k.val + 1) by ring)))
        iapply (fl_outV d L fx (off_5 L k v0) (k10_off5_inb L k k10_h2) v0 a4 a6 cc10_scratch6.sem f0 g4 g6' hl6 hin4); iexists _
        isplitr
        rotate_left
        · isplitl [F10]; · iexact F10
          iexact H6
        ipureintro; intro y; rfl
      isplitl [F9]
      · iapply (Entails.of_eq (congrArg (inSlotV d L fx a5 cc10_scratch5.sem) (show 2 * k.val + 3 = 2 * (k.val + 1) + 1 by ring)))
        iapply (fl_inV d L fx (off_11 L k v3') (k10_off11_inb L k k10_h6) v3' a5 cc10_scratch5.sem); iexists _, _
        isplitr
        rotate_left
        · iexact F9
        ipureintro; intro y; rfl
      · iapply (Entails.of_eq (congrArg (outSlotV d L fx a7 cc10_scratch7.sem) (show 2 * k.val + 1 + 2 = 2 * (k.val + 1) + 1 by ring)))
        iapply (fl_outV d L fx (off_10 L k v1) (k10_off10_inb L k k10_h5) v1 a5 a7 cc10_scratch7.sem f1 g5 g7' hl7 hin5); iexists _
        isplitr
        rotate_left
        · isplitl [F11]; · iexact F11
          iexact H7
        ipureintro; intro y; rfl
  · unfold invV
    isplitr; · iexact Hmw
    isplitl [HO]
    · iexists W; isplitr
      · ipureintro; exact fun p hp => .inl hp
      · iexact HO
    isplitl [HX]; · iexact HX
    isplitl [HOut]; · iapply (Entails.of_eq (oMix_zero d L fx).symm); iexact HOut
    isplitl [S8]; · iexact S8
    isplitl [H6 Hs10]
    · rw [outSlotV_neg d L fx (by omega)]; isplitl [H6]; · iexists _; iexact H6
      iexact Hs10
    isplitl [S9]; · iexact S9
    rw [outSlotV_neg d L fx (by omega)]; isplitl [H7]; · iexists _; iexact H7
    iexact Hs11
  iintro %acc' HI
  ihave HI := (Entails.of_eq (congrArg (fun t => invV d L O W fx t acc') trips1)) $$ HI
  unfold invV
  icases HI with ⟨-, ⟨%W', %hW', HO⟩, HX, HOut, S8, S10, S9, S11⟩
  have nv16 : ¬ valid L (2 * 8) := by unfold valid; omega
  have nv17 : ¬ valid L (2 * 8 + 1) := by unfold valid; omega
  have hm14 : 2 ≤ 2 * 8 ∧ valid L (2 * 8 - 2) := ⟨by omega, Or.inl (by omega)⟩
  ihave S8 := (Entails.of_eq (inSlotV_neg d L fx nv16)) $$ S8
  icases S8 with ⟨⟨%g4', H4⟩, Hs8⟩
  ihave S9 := (Entails.of_eq (inSlotV_neg d L fx nv17)) $$ S9
  icases S9 with ⟨⟨%g5', H5⟩, Hs9⟩
  ihave S10 := (Entails.of_eq (outSlotV_pos d L fx hm14)) $$ S10
  icases S10 with ⟨%g6', F10, R6⟩
  by_cases hb : big L
  · have k10_h8 : k10_cond8 L = 1#1 := (cond8_iff L).mpr hb
    have hm15 : 2 ≤ 2 * 8 + 1 ∧ valid L (2 * 8 + 1 - 2) := ⟨by omega, Or.inr ⟨by omega, hb⟩⟩
    ihave S11 := (Entails.of_eq (outSlotV_pos d L fx hm15)) $$ S11
    icases S11 with ⟨%g7', F11, R7⟩
    sl_exec
    sl_step
    isplitl [HX]; · iapply (xRange_end d L fx); iexact HX
    isplitl [HOut F10_dst F11_dst]
    · iapply (Entails.of_eq (oRange_end (oQ d L fx)).symm)
      isplitl [F10_dst]; · iapply (Entails.of_eq (oQ_pos d L fx hm14.2).symm); iexact F10_dst
      isplitl [F11_dst]; · iapply (Entails.of_eq (oQ_pos d L fx hm15.2).symm); iexact F11_dst
      iapply (Entails.of_eq (oMix_end d L fx)); iexact HOut
    isplitl [H4]; · iexists _; iexact H4
    isplitl [H5]; · iexists _; iexact H5
    isplitl [R6]; · iexists _; iexact R6
    isplitl [R7]; · iexists _; iexact R7
    isplitl [Hs8]; · iexact Hs8
    isplitl [Hs9]; · iexact Hs9
    isplitl [F10]; · iexact F10
    isplitl [F11]; · iexact F11
    isplitl [HO]
    · iexists _; isplitr
      rotate_left
      · iexact HO
      ipureintro; intro p hp
      rcases Finset.mem_insert.mp hp with rfl | hp
      · exact .inr rfl
      rcases Finset.mem_insert.mp hp with rfl | hp
      · exact .inr rfl
      exact hW' p hp
    iexact HR
  · have k10_h8 : ¬ k10_cond8 L = 1#1 := fun h => hb ((cond8_iff L).mp h)
    have hm15 : ¬ (2 ≤ 2 * 8 + 1 ∧ valid L (2 * 8 + 1 - 2)) := by intro h; have := h.2; unfold valid at this; omega
    ihave S11 := (Entails.of_eq (outSlotV_neg d L fx hm15)) $$ S11
    icases S11 with ⟨⟨%g7', R7⟩, F11⟩
    sl_exec
    sl_step
    isplitl [HX]; · iapply (xRange_end d L fx); iexact HX
    isplitl [HOut F10_dst]
    · iapply (Entails.of_eq (oRange_end (oQ d L fx)).symm)
      isplitl [F10_dst]; · iapply (Entails.of_eq (oQ_pos d L fx hm14.2).symm); iexact F10_dst
      isplitr; · iapply (Entails.of_eq (oQ_neg d L fx (n := 15) (by unfold valid; omega)).symm); iempintro
      iapply (Entails.of_eq (oMix_end d L fx)); iexact HOut
    isplitl [H4]; · iexists _; iexact H4
    isplitl [H5]; · iexists _; iexact H5
    isplitl [R6]; · iexists _; iexact R6
    isplitl [R7]; · iexists _; iexact R7
    isplitl [Hs8]; · iexact Hs8
    isplitl [Hs9]; · iexact Hs9
    isplitl [F10]; · iexact F10
    isplitl [F11]; · iexact F11
    isplitl [HO]
    · iexists _; isplitr
      rotate_left
      · iexact HO
      ipureintro; intro p hp
      rcases Finset.mem_insert.mp hp with rfl | hp
      · exact .inr rfl
      exact hW' p hp
    iexact HR

/-! The subcore's scoped storage: the four staging buffers and the four semaphores of this call, and the rest. -/

abbrev c8 : GSem nD τ sig := (thr d L, SemLoc.dma cc10_scratch4.sem)
abbrev c9 : GSem nD τ sig := (thr d L, SemLoc.dma cc10_scratch5.sem)
abbrev c10 : GSem nD τ sig := (thr d L, SemLoc.dma cc10_scratch6.sem)
abbrev c11 : GSem nD τ sig := (thr d L, SemLoc.dma cc10_scratch7.sem)

omit [FloatOps F] in
theorem ownSems0_V :
    (ownSems0 (thr d L) : sProp 𝕄)
      = iprop(semVal (c8 d L) 0 ∗ semVal (c9 d L) 0 ∗ semVal (c10 d L) 0 ∗ semVal (c11 d L) 0
          ∗ bigSep (((((ownCells (thr d L)).erase (c8 d L)).erase (c9 d L)).erase (c10 d L)).erase (c11 d L)) fun g => semVal g 0) := by
  unfold SparseCore.Cfg.ownSems0
  rw [SparseCore.bigSep_erase' ((mem_ownCells (g := c8 d L)).mpr ⟨rfl, by
      show (SemLoc.dma cc10_scratch4.sem : SemLoc sig).isScoped .scVector = true; decide⟩),
    SparseCore.bigSep_erase' (Finset.mem_erase.mpr ⟨fun e => absurd (Prod.mk.inj e).2 (by decide), (mem_ownCells (g := c9 d L)).mpr ⟨rfl, by
      show (SemLoc.dma cc10_scratch5.sem : SemLoc sig).isScoped .scVector = true; decide⟩⟩),
    SparseCore.bigSep_erase' (Finset.mem_erase.mpr ⟨fun e => absurd (Prod.mk.inj e).2 (by decide), Finset.mem_erase.mpr ⟨fun e => absurd (Prod.mk.inj e).2 (by decide),
      (mem_ownCells (g := c10 d L)).mpr ⟨rfl, by show (SemLoc.dma cc10_scratch6.sem : SemLoc sig).isScoped .scVector = true; decide⟩⟩⟩),
    SparseCore.bigSep_erase' (Finset.mem_erase.mpr ⟨fun e => absurd (Prod.mk.inj e).2 (by decide), Finset.mem_erase.mpr ⟨fun e => absurd (Prod.mk.inj e).2 (by decide),
      Finset.mem_erase.mpr ⟨fun e => absurd (Prod.mk.inj e).2 (by decide),
      (mem_ownCells (g := c11 d L)).mpr ⟨rfl, by show (SemLoc.dma cc10_scratch7.sem : SemLoc sig).isScoped .scVector = true; decide⟩⟩⟩⟩)]

abbrev pV (L : grid10.Coords) : Proc τ := Proc.scVector (cV L) (jV L)

omit [FloatOps F] in
theorem ownBufs_V :
    (ownBufs (thr d L) : sProp 𝕄)
      = iprop((∃ f, (thr d L).loc cc10_scratch0 ↦{fullShare} f) ∗ (∃ f, (thr d L).loc cc10_scratch1 ↦{fullShare} f)
          ∗ (∃ f, (thr d L).loc cc10_scratch2 ↦{fullShare} f) ∗ (∃ f, (thr d L).loc cc10_scratch3 ↦{fullShare} f)
          ∗ bigSep (((((ownRefs (τ := τ) (pV L)).erase ((pV L).devRef cc10_scratch0)).erase ((pV L).devRef cc10_scratch1)).erase
              ((pV L).devRef cc10_scratch2)).erase ((pV L).devRef cc10_scratch3))
              fun b => iprop(∃ f, ((d, b) : Loc nD τ sig) ↦{fullShare} f)) := by
  unfold SparseCore.Cfg.ownBufs
  refine (SparseCore.bigSep_erase' (SparseCore.Cfg.mem_ownRefs_of_owner (p := pV L) (b := (pV L).devRef cc10_scratch0) rfl)).trans ?_
  rw [SparseCore.bigSep_erase' (Finset.mem_erase.mpr ⟨fun e => absurd (Proc.devRef_injective _ e) (show (cc10_scratch1 : Ref sig .scVector) ≠ cc10_scratch0 by decide),
      SparseCore.Cfg.mem_ownRefs_of_owner (p := pV L) (b := (pV L).devRef cc10_scratch1) rfl⟩),
    SparseCore.bigSep_erase' (Finset.mem_erase.mpr ⟨fun e => absurd (Proc.devRef_injective _ e) (show (cc10_scratch2 : Ref sig .scVector) ≠ cc10_scratch1 by decide),
      Finset.mem_erase.mpr ⟨fun e => absurd (Proc.devRef_injective _ e) (show (cc10_scratch2 : Ref sig .scVector) ≠ cc10_scratch0 by decide),
      SparseCore.Cfg.mem_ownRefs_of_owner (p := pV L) (b := (pV L).devRef cc10_scratch2) rfl⟩⟩),
    SparseCore.bigSep_erase' (Finset.mem_erase.mpr ⟨fun e => absurd (Proc.devRef_injective _ e) (show (cc10_scratch3 : Ref sig .scVector) ≠ cc10_scratch2 by decide),
      Finset.mem_erase.mpr ⟨fun e => absurd (Proc.devRef_injective _ e) (show (cc10_scratch3 : Ref sig .scVector) ≠ cc10_scratch1 by decide),
      Finset.mem_erase.mpr ⟨fun e => absurd (Proc.devRef_injective _ e) (show (cc10_scratch3 : Ref sig .scVector) ≠ cc10_scratch0 by decide),
      SparseCore.Cfg.mem_ownRefs_of_owner (p := pV L) (b := (pV L).devRef cc10_scratch3) rfl⟩⟩⟩)]

/-- The rest of the subcore's scoped storage, which the task does not touch. -/
def restR : sProp 𝕄 :=
  iprop((bigSep (((((ownRefs (τ := τ) (pV L)).erase ((pV L).devRef cc10_scratch0)).erase ((pV L).devRef cc10_scratch1)).erase
              ((pV L).devRef cc10_scratch2)).erase ((pV L).devRef cc10_scratch3))
              fun b => iprop(∃ f, ((d, b) : Loc nD τ sig) ↦{fullShare} f))
      ∗ bigSep (((((ownCells (thr d L)).erase (c8 d L)).erase (c9 d L)).erase (c10 d L)).erase (c11 d L)) fun g => semVal g 0)

theorem body_pre (hO : ∀ g, O g none = 0) :
    iprop(levAts (K (F := F)).L (K (F := F)).lev ∗ emp ∗ goRes d L fx ∗ ownBufs (thr d L) ∗ ownSems0 (thr d L) ∗ owes (thr d L) O W)
      ⊢ runPre d L O W fx (restR (F := F) d L) := by
  rw [ownSems0_V, ownBufs_V]
  unfold goRes runPre restR
  iintro ⟨#Hlv, -, ⟨HX, HOut⟩, ⟨H4, H5, H6, H7, Hbufs⟩, ⟨Hs8, Hs9, Hs10, Hs11, Hsems⟩, HO⟩
  ihave Hmw := ((K (F := F)).mayWaits_none (thr := thr d L) hO) $$ Hlv
  isplitr; · iexact Hmw
  isplitl [HO]; · iexact HO
  isplitl [HX]; · iexact HX
  isplitl [HOut]; · iexact HOut
  isplitl [H4]; · iexact H4
  isplitl [H5]; · iexact H5
  isplitl [H6]; · iexact H6
  isplitl [H7]; · iexact H7
  isplitl [Hs8]; · iexact Hs8
  isplitl [Hs9]; · iexact Hs9
  isplitl [Hs10]; · iexact Hs10
  isplitl [Hs11]; · iexact Hs11
  isplitl [Hbufs]; · iexact Hbufs
  iexact Hsems

theorem body_post :
    runPost d L O W fx (restR (F := F) d L)
      ⊢ iprop(tdRes d L fx ∗ ownBufs (thr d L) ∗ ownSems0 (thr d L) ∗ ∃ W', ⌜∀ p ∈ W', p ∈ W ∨ p.2 = none⌝ ∗ owes (thr d L) O W') := by
  rw [ownSems0_V, ownBufs_V]
  unfold tdRes runPost restR
  iintro ⟨HX, HOut, H4, H5, H6, H7, Hs8, Hs9, Hs10, Hs11, HW, Hbufs, Hsems⟩
  isplitl [HX HOut]
  · isplitl [HX]; · iexact HX
    iexact HOut
  isplitl [H4 H5 H6 H7 Hbufs]
  · isplitl [H4]; · iexact H4
    isplitl [H5]; · iexact H5
    isplitl [H6]; · iexact H6
    isplitl [H7]; · iexact H7
    iexact Hbufs
  isplitl [Hs8 Hs9 Hs10 Hs11 Hsems]
  · isplitl [Hs8]; · iexact Hs8
    isplitl [Hs9]; · iexact Hs9
    isplitl [Hs10]; · iexact Hs10
    isplitl [Hs11]; · iexact Hs11
    iexact Hsems
  iexact HW

/-- The task in the launch theorem's shape: from what the call hands the tile and the subcore's scoped storage to
    what the tile hands back and the storage again. -/
theorem tile_body (hF : (K (F := F)).Facts) (hO : ∀ g, O g none = 0) :
    iprop(levAts (K (F := F)).L (K (F := F)).lev ∗ emp ∗ goRes d L fx ∗ scopedBufs (thr d L) ∗ scopedSems0 (thr d L) ∗ owes (thr d L) O W)
      ⊢ wp frame (wpE (defs₀ (F := F)) 𝒱₀ (thr d L) none) Set.univ
          (cc10_sc_group L xtW (Memref.isWhole_whole _) oW (Memref.isWhole_whole _) a4 (Memref.isWhole_whole _) a5 (Memref.isWhole_whole _)
            a6 (Memref.isWhole_whole _) a7 (Memref.isWhole_whole _) cc10_scratch4 cc10_scratch5 cc10_scratch6 cc10_scratch7)
          fun _ => iprop(tdRes d L fx ∗ scopedBufs (thr d L) ∗ scopedSems0 (thr d L)
            ∗ ∃ W', ⌜∀ p ∈ W', p ∈ W ∨ p.2 = none⌝ ∗ owes (thr d L) O W') := by
  rw [(K (F := F)).scopedBufs_V hF d (cV L) (jV L), SparseCore.Cfg.scopedSems0_V (Val := Elt F) d (cV L) (jV L)]
  exact (body_pre d L O W fx hO).trans ((tile_run d L O W fx (restR (F := F) d L)).trans (wp_mono frame _ _ fun _ => body_post d L O W fx))

end Tile

end Cert.Proof.TileB10

end
-- ==== Proof.TileVal11.lean ====
/-
  What the staging buffers of one vector subcore hold while it copies a piece of 3200 consecutive elements of row 11 of
  the transposed argument into the flat result, read index by index. No program and no ownership here: only the contents.

  A transfer lands the piece in row 0 of an 8 × 3200 staging array (`InRow`: position (0, t) of that row holds element
  (0, pos + t) of the transposed argument, `pos` the piece's first column). A loop of 200 trips copies that row, 16 lanes
  per trip, into the first 3200 elements of a flat staging array of 25600: trip `j` reads the 1 × 16 window at columns
  [16 j, 16 j + 16) of row 0 and writes it, flattened, at elements [16 j, 16 j + 16). After `j` trips the first 16 j
  elements of the flat array are the first 16 j elements of the row (`Lanes`); a trip extends the prefix by 16
  (`lanes_step`: an element below 16 j is outside the window written and keeps its value, an element of the window reads
  the lane written there, which is the row's element at the same column). A second transfer writes the first 3200
  elements of the flat array to the piece of the result at the same `pos`; so every element of that piece of the result
  holds the element of row 11 of the transposed argument at its own position (`out_written`): the composite of the three
  index maps t ↦ (0, pos + t) ↦ (0, t) ↦ t ↦ pos + t is the identity on positions of the row.
-/
import proofs.«206869_g37898791420194_cont_8to1_b_558_20_alg».proof.Proof.TileK11Defs
import proofs.«206869_g37898791420194_cont_8to1_b_558_20_alg».proof.Proof.Spec
import Idealize.ShloMosaic.Lib.WritesUnit
import Idealize.ShloMosaic.Lib.ValueLayout

noncomputable section

namespace Cert.Proof.TileVal11

open Cert.Proof.TileK11 Cert.KernelIdeal Cert.KernelIdeal.Gen
open Idealize.ShloMosaic Idealize.ShloMosaic.ValueIdx

variable {F : FTy → Type} [FloatOps F]
variable (d : Dev nD) (L : grid11.Coords)
variable (fx : Buf (Elt F) ((Memref.whole main_v0_scv : Memref sig .scVector .hbm S22x1600000 .f32).view.loc (thr d L)))

abbrev rowRect : Rect S8x3200 := Rect.unit (s := S8x3200) ![0, 0] S1x3200.size inb_S8x3200_S1x3200_0_0

/-- row 0 of the staging array is piece n of the argument row -/
def InRow (a : Memref sig .scVector .vmem S8x3200 .f32) (ga : Buf (Elt F) (a.view.loc (thr d L))) (n : ℕ) : Prop :=
  ∀ y : S1x3200.Idx, a.view.read (Elt F) ga (rowRect.emb y) = (inM L n).view.read (Elt F) fx y

theorem inRow_fetch (a : Memref sig .scVector .vmem S8x3200 .f32) (gold : Buf (Elt F) (a.view.loc (thr d L)))
    (w : S1x3200.Idx → Elt F .f32) (n : ℕ) (hw : ∀ y, w y = (inM L n).view.read (Elt F) fx y) :
    InRow d L fx a (a.view.writes (Elt F) gold [⟨rowRect, w⟩]) n :=
  fun y => (View.read_writes_cons_emb a.view gold rowRect w [] y).trans (hw y)

def Lanes (a : Memref sig .scVector .vmem S8x3200 .f32) (b : Memref sig .scVector .vmem S25600 .f32)
    (ga : Buf (Elt F) (a.view.loc (thr d L))) (gb : Buf (Elt F) (b.view.loc (thr d L))) (j : ℕ) : Prop :=
  ∀ (r : ℕ) (hr : r < 3200), r < 16 * j →
    b.view.read (Elt F) gb (ix1 (⟨r, by omega⟩ : Fin 25600)) = a.view.read (Elt F) ga (ix2 (0 : Fin 8) (⟨r, hr⟩ : Fin 3200))

theorem lanes_zero (a : Memref sig .scVector .vmem S8x3200 .f32) (b : Memref sig .scVector .vmem S25600 .f32)
    (ga : Buf (Elt F) (a.view.loc (thr d L))) (gb : Buf (Elt F) (b.view.loc (thr d L))) : Lanes d L a b ga gb 0 := by
  intro r hr h; omega

/-- The 1 × 16 window at column `c` of the staging array, read at lane `t`, is element `(0, c + t)`. -/
theorem idx_window {off : Fin 2 → ℕ} {c : ℕ} (h : off = ![0, c]) (p : ∀ a', off a' + S1x16.size a' ≤ S8x3200.size a')
    (t : Fin 16) (hr : c + t.val < 3200) :
    (Rect.unit (s := S8x3200) off S1x16.size p).toLoadRect.idx (ix2 (0 : Fin 1) t) = ix2 (0 : Fin 8) (⟨c + t.val, hr⟩ : Fin 3200) := by
  subst h
  funext a'; apply Fin.ext
  rw [LoadRect.idx_apply]
  match a' with
  | ⟨0, _⟩ => show 0 + 1 * 0 = 0; omega
  | ⟨1, _⟩ => show c + 1 * t.val = c + t.val; omega

/-- One trip of a lane-copy loop, the offsets given by their closed forms. -/
theorem lanes_step_core (a : Memref sig .scVector .vmem S8x3200 .f32) (b : Memref sig .scVector .vmem S25600 .f32)
    (ga : Buf (Elt F) (a.view.loc (thr d L))) (gb : Buf (Elt F) (b.view.loc (thr d L)))
    (t : ℕ) {off3 : Fin 2 → ℕ} {off4 : Fin 1 → ℕ} (h3 : off3 = ![0, 16 * t]) (h4 : off4 = ![16 * t])
    (p3 : ∀ a', off3 a' + S1x16.size a' ≤ S8x3200.size a') (p4 : ∀ a', off4 a' + S16.size a' ≤ S25600.size a')
    (h : Lanes d L a b ga gb t) :
    Lanes d L a b ga (b.view.writes (Elt F) gb [⟨Rect.unit (s := S25600) off4 S16.size p4,
      shapeCast S16 (a.view.readAt (Elt F) (Rect.unit (s := S8x3200) off3 S1x16.size p3).toLoadRect ga) shapeCasts_S1x16_S16⟩]) (t + 1) := by
  intro r hr hlt
  by_cases hlo : r < 16 * t
  · refine (View.read_writes_cons_unit_of_not_mem b.view gb p4 _ [] _ h4 (0 : Fin 1) (Or.inl ?_)).trans (h r hr hlo)
    show r < 16 * t
    exact hlo
  · have hx : r - 16 * t < 16 := by omega
    refine (View.read_writes_cons_unit_of_mem b.view gb p4 _ [] _ (ix1 (⟨r - 16 * t, hx⟩ : Fin 16)) h4 ?_).trans ?_
    · intro a'
      match a' with
      | ⟨0, _⟩ => show r = 16 * t + (r - 16 * t); omega
    · rw [shapeCast_1a_a_apply, View.readAt_apply, idx_window h3 p3 ⟨r - 16 * t, hx⟩ (by show 16 * t + (r - 16 * t) < 3200; omega)]
      congr 2
      apply Fin.ext
      show 16 * t + (r - 16 * t) = r
      omega

theorem lanes_step (a : Memref sig .scVector .vmem S8x3200 .f32) (b : Memref sig .scVector .vmem S25600 .f32)
    (ga : Buf (Elt F) (a.view.loc (thr d L))) (gb : Buf (Elt F) (b.view.loc (thr d L)))
    (j : Fin k11_t2_loop.trips) (p3 : ∀ a', (k11_off3 j) a' + S1x16.size a' ≤ S8x3200.size a')
    (p4 : ∀ a', (k11_off4 j) a' + S16.size a' ≤ S25600.size a') (h : Lanes d L a b ga gb j.val) :
    Lanes d L a b ga (b.view.writes (Elt F) gb [⟨Rect.unit (s := S25600) (k11_off4 j) S16.size p4,
      k11_pay1 (a.view.readAt (Elt F) (Rect.unit (s := S8x3200) (k11_off3 j) S1x16.size p3).toLoadRect ga)⟩]) (j.val + 1) :=
  lanes_step_core d L a b ga gb j.val (k11_off3_eq j) (k11_off4_eq j) p3 p4 h

theorem lanes_step' (a : Memref sig .scVector .vmem S8x3200 .f32) (b : Memref sig .scVector .vmem S25600 .f32)
    (ga : Buf (Elt F) (a.view.loc (thr d L))) (gb : Buf (Elt F) (b.view.loc (thr d L)))
    (j : Fin k11_t3_loop.trips) (p3 : ∀ a', (k11_off8 j) a' + S1x16.size a' ≤ S8x3200.size a')
    (p4 : ∀ a', (k11_off9 j) a' + S16.size a' ≤ S25600.size a') (h : Lanes d L a b ga gb j.val) :
    Lanes d L a b ga (b.view.writes (Elt F) gb [⟨Rect.unit (s := S25600) (k11_off9 j) S16.size p4,
      k11_pay2 (a.view.readAt (Elt F) (Rect.unit (s := S8x3200) (k11_off8 j) S1x16.size p3).toLoadRect ga)⟩]) (j.val + 1) :=
  lanes_step_core d L a b ga gb j.val (k11_off8_eq j) (k11_off9_eq j) p3 p4 h

/-- Position `y` of the write-out window of the flat staging array is its element `y 0`. -/
theorem stg_emb (y : S3200.Idx) (hy : (y 0).val < 25600) :
    (Rect.unit (s := S25600) ![0] S3200.size inb_S25600_S3200_0).emb y = ix1 (⟨(y 0).val, hy⟩ : Fin 25600) := by
  funext a'; apply Fin.ext
  match a' with
  | ⟨0, _⟩ => show 0 + 1 * (y 0).val = (y 0).val; omega

/-- Position `(0, t)` of row 0 of the staging array is its element `(0, t)`. -/
theorem row_emb (t : Fin 3200) : rowRect.emb (ix2 (0 : Fin 1) t) = ix2 (0 : Fin 8) t := by
  funext a'; apply Fin.ext
  match a' with
  | ⟨0, _⟩ => show 0 + 1 * 0 = 0; omega
  | ⟨1, _⟩ => show 0 + 1 * t.val = t.val; omega

/-- Position `(0, t)` of piece `n` of the argument row is element `(0, pos + t)` of the transposed argument;
    position `y` of piece `n` of the result is element `pos + y 0` of the result. -/
theorem in_emb (n : ℕ) (t : Fin 3200) (h : pos L n + t.val < 1600000) :
    (inM L n).view.emb (ix2 (0 : Fin 1) t) = ix2 (11 : Fin 22) (⟨pos L n + t.val, h⟩ : Fin 1600000) := by
  funext a'; apply Fin.ext
  match a' with
  | ⟨0, _⟩ => show 11 + 1 * 0 = 11; omega
  | ⟨1, _⟩ => show pos L n + 1 * t.val = pos L n + t.val; omega

theorem out_emb (n : ℕ) (y : S3200.Idx) (h : pos L n + (y 0).val < 1600000) :
    (outM L n).view.emb y = ix1 (⟨pos L n + (y 0).val, h⟩ : Fin 1600000) := by
  funext a'; apply Fin.ext
  match a' with
  | ⟨0, _⟩ => show pos L n + 1 * (y 0).val = pos L n + (y 0).val; omega

/-- Both lane-copy loops run 200 trips: 200 · 16 = 3200, the whole row. -/
theorem trips2 : k11_t2_loop.trips = 200 := by decide
theorem trips3 : k11_t3_loop.trips = 200 := by decide

/-- After all its trips a lane-copy loop has copied the whole row. -/
theorem lanes_all (a : Memref sig .scVector .vmem S8x3200 .f32) (b : Memref sig .scVector .vmem S25600 .f32)
    (ga : Buf (Elt F) (a.view.loc (thr d L))) (gb : Buf (Elt F) (b.view.loc (thr d L)))
    (h : Lanes d L a b ga gb k11_t2_loop.trips) : Lanes d L a b ga gb 200 := trips2 ▸ h
theorem lanes_all' (a : Memref sig .scVector .vmem S8x3200 .f32) (b : Memref sig .scVector .vmem S25600 .f32)
    (ga : Buf (Elt F) (a.view.loc (thr d L))) (gb : Buf (Elt F) (b.view.loc (thr d L)))
    (h : Lanes d L a b ga gb k11_t3_loop.trips) : Lanes d L a b ga gb 200 := trips3 ▸ h

/-- The write-out of a piece: the first 3200 elements of the flat staging array, which the 200 lane copies filled from
    row 0 of the staging array, which the fetch filled from piece `n` of row 11 of the transposed argument, land at
    piece `n` of the result, at the same positions of the row. -/
theorem out_written (a : Memref sig .scVector .vmem S8x3200 .f32) (b : Memref sig .scVector .vmem S25600 .f32) (n : ℕ)
    (ga : Buf (Elt F) (a.view.loc (thr d L))) (gb : Buf (Elt F) (b.view.loc (thr d L)))
    (f0 : Buf (Elt F) ((outM L n).view.loc (thr d L))) (w : S3200.Idx → Elt F .f32)
    (hw : ∀ y, w y = (stg b).view.read (Elt F) gb y) (hl : Lanes d L a b ga gb 200) (hr : InRow d L fx a ga n) (hv : valid L n) :
    ∀ i ∈ (outM L n).view.set, ((outM L n).view.writes (Elt F) f0 [⟨Rect.whole _, w⟩]) i = Cert.Spec.row 11 fx i := by
  intro i hi
  obtain ⟨y, -, rfl⟩ := Finset.mem_map.mp hi
  have hy : (y 0).val < 3200 := (y 0).isLt
  have hp : pos L n + (y 0).val < 1600000 := by unfold pos; omega
  have e1 : (outM L n).view.writes (Elt F) f0 [⟨Rect.whole _, w⟩] ((outM L n).view.emb y) = w y := by
    have h := View.read_writes_cons_emb (outM L n).view f0 (Rect.whole _) w [] y
    rw [Rect.emb_whole_apply] at h
    exact (cast_eq _ _).symm.trans ((View.read_apply _ _).symm.trans h)
  have e2 : (stg b).view.read (Elt F) gb y = b.view.read (Elt F) gb (ix1 (⟨(y 0).val, by omega⟩ : Fin 25600)) :=
    congrArg (b.view.read (Elt F) gb) (stg_emb y (by omega))
  have e3 : a.view.read (Elt F) ga (ix2 (0 : Fin 8) (⟨(y 0).val, hy⟩ : Fin 3200))
      = (inM L n).view.read (Elt F) fx (ix2 (0 : Fin 1) (⟨(y 0).val, hy⟩ : Fin 3200)) :=
    (congrArg (a.view.read (Elt F) ga) (row_emb ⟨(y 0).val, hy⟩).symm).trans (hr _)
  have e4 : (inM L n).view.read (Elt F) fx (ix2 (0 : Fin 1) (⟨(y 0).val, hy⟩ : Fin 3200))
      = fx (ix2 (11 : Fin 22) (⟨pos L n + (y 0).val, hp⟩ : Fin 1600000)) :=
    ((View.read_apply _ _).trans (cast_eq _ _)).trans (congrArg fx (in_emb L n ⟨(y 0).val, hy⟩ hp))
  have e5 : Cert.Spec.row 11 fx ((outM L n).view.emb y) = fx (ix2 (11 : Fin 22) (⟨pos L n + (y 0).val, hp⟩ : Fin 1600000)) :=
    (congrArg (Cert.Spec.row 11 fx) (out_emb L n y hp)).trans (Cert.Spec.row_apply 11 fx _)
  exact e1.trans ((hw y).trans (e2.trans ((hl _ hy (by omega)).trans (e3.trans (e4.trans e5.symm)))))

end Cert.Proof.TileVal11

end
-- ==== Proof.TileK11.lean ====
/-
  One vector subcore's task of copy kernel 11 (counting from 0), run symbolically: the two fetch slots and two write-out slots
  between trips of the main loop (what each transfer in flight will hand back, and what the staging buffers hold), the
  invariant of the main loop and of the two lane-copy loops, and the task's run — from the tile's pieces of row 11 of
  the transposed argument and of the result to the same pieces with the result holding the row's elements.
-/
import proofs.«206869_g37898791420194_cont_8to1_b_558_20_alg».proof.Proof.TileK11Defs
import proofs.«206869_g37898791420194_cont_8to1_b_558_20_alg».proof.Proof.TileVal11
noncomputable section

namespace Cert.Proof.TileK11

open Cert.KernelIdeal Cert.KernelIdeal.Gen Cert.Proof.TileVal11
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 22) (Elt F) ℕ UU ℕ
local notation "xtW" => (Memref.whole Cert.KernelIdeal.main_v0_scv : Memref Cert.KernelIdeal.sig Kind.scVector Space.hbm Cert.KernelIdeal.S22x1600000 EltTy.f32)
local notation "oW" => (Memref.whole Cert.KernelIdeal.main_v12_scv : Memref Cert.KernelIdeal.sig Kind.scVector Space.hbm Cert.KernelIdeal.S1600000 EltTy.f32)
local notation "a4" => (Memref.whole Cert.KernelIdeal.cc11_scratch0 : Memref Cert.KernelIdeal.sig Kind.scVector Space.vmem Cert.KernelIdeal.S8x3200 EltTy.f32)
local notation "a5" => (Memref.whole Cert.KernelIdeal.cc11_scratch1 : Memref Cert.KernelIdeal.sig Kind.scVector Space.vmem Cert.KernelIdeal.S8x3200 EltTy.f32)
local notation "a6" => (Memref.whole Cert.KernelIdeal.cc11_scratch2 : Memref Cert.KernelIdeal.sig Kind.scVector Space.vmem Cert.KernelIdeal.S25600 EltTy.f32)
local notation "a7" => (Memref.whole Cert.KernelIdeal.cc11_scratch3 : Memref Cert.KernelIdeal.sig Kind.scVector Space.vmem Cert.KernelIdeal.S25600 EltTy.f32)

variable [FloatOps F]

section Tile

variable (d : Dev nD) (L : grid11.Coords)
variable (O : CellTallies nD τ sig (HIx 22)) (W : Waits sig (HIx 22))
variable (fx : Buf (Elt F) ((xtW).view.loc (thr d L)))

/-- Piece `n` of the result at its final contents. -/
abbrev oqPiece (n : ℕ) : sProp 𝕄 := (outM L n).view.loc (thr d L) ↦[(outM L n).view.set]{fullShare} (Cert.Spec.row 11 fx)
theorem oQ_pos {n : ℕ} (v : valid L n) : oQ d L fx n = oqPiece d L fx n := if_pos v
theorem oQ_neg {n : ℕ} (v : ¬ valid L n) : oQ d L fx n = iprop(emp) := if_neg v

/-- A fetch slot, remembering that the staging row it will hand back holds the piece. -/
def inSlotV (a : Memref sig .scVector .vmem S8x3200 .f32) (sm : DmaSem sig) (n : ℕ) : sProp 𝕄 :=
  if valid L n then
    iprop(∃ g, ⌜InRow d L fx a g n⌝ ∗ Transfers.Flight countersEmb (thr d L) (SemLoc.dma sm) (default : HIx 22) NN
      iprop((a.view.loc (thr d L) ↦{fullShare} g) ∗ xtPiece d L fx n))
  else iprop((∃ g, a.view.loc (thr d L) ↦{fullShare} g) ∗ semVal (thr d L, SemLoc.dma sm) 0)

/-- A write-out slot: the piece in flight will come back holding the row's elements. -/
def outSlotV (a : Memref sig .scVector .vmem S25600 .f32) (sm : DmaSem sig) (m : ℕ) : sProp 𝕄 :=
  if 2 ≤ m ∧ valid L (m - 2) then
    iprop(∃ g, Transfers.Flight countersEmb (thr d L) (SemLoc.dma sm) (default : HIx 22) NN
        iprop(oqPiece d L fx (m - 2) ∗ ((stg a).view.loc (thr d L) ↦[(stg a).view.set]{fullShare} g))
      ∗ (a.view.loc (thr d L) ↦[Finset.univ \ (stg a).view.set]{fullShare} g))
  else iprop((∃ g, a.view.loc (thr d L) ↦{fullShare} g) ∗ semVal (thr d L, SemLoc.dma sm) 0)

theorem inSlotV_pos {a : Memref sig .scVector .vmem S8x3200 .f32} {sm : DmaSem sig} {n : ℕ} (v : valid L n) :
    inSlotV d L fx a sm n = iprop(∃ g, ⌜InRow d L fx a g n⌝ ∗ Transfers.Flight countersEmb (thr d L) (SemLoc.dma sm) (default : HIx 22) NN
      iprop((a.view.loc (thr d L) ↦{fullShare} g) ∗ xtPiece d L fx n)) := by unfold inSlotV; rw [if_pos v]
theorem inSlotV_neg {a : Memref sig .scVector .vmem S8x3200 .f32} {sm : DmaSem sig} {n : ℕ} (v : ¬ valid L n) :
    inSlotV d L fx a sm n = iprop((∃ g, a.view.loc (thr d L) ↦{fullShare} g) ∗ semVal (thr d L, SemLoc.dma sm) 0) := by
  unfold inSlotV; rw [if_neg v]
theorem outSlotV_pos {a : Memref sig .scVector .vmem S25600 .f32} {sm : DmaSem sig} {m : ℕ} (h : 2 ≤ m ∧ valid L (m - 2)) :
    outSlotV d L fx a sm m = iprop(∃ g, Transfers.Flight countersEmb (thr d L) (SemLoc.dma sm) (default : HIx 22) NN
        iprop(oqPiece d L fx (m - 2) ∗ ((stg a).view.loc (thr d L) ↦[(stg a).view.set]{fullShare} g))
      ∗ (a.view.loc (thr d L) ↦[Finset.univ \ (stg a).view.set]{fullShare} g)) := by unfold outSlotV; rw [if_pos h]
theorem outSlotV_neg {a : Memref sig .scVector .vmem S25600 .f32} {sm : DmaSem sig} {m : ℕ} (h : ¬ (2 ≤ m ∧ valid L (m - 2))) :
    outSlotV d L fx a sm m = iprop((∃ g, a.view.loc (thr d L) ↦{fullShare} g) ∗ semVal (thr d L, SemLoc.dma sm) 0) := by
  unfold outSlotV; rw [if_neg h]

/-- A fetch just issued: the staging row will hold what the transfer reads, which is the piece. -/
theorem fl_inV {off : Fin 2 → ℕ} {n : ℕ} (h : off = ![11, pos L n]) (p : ∀ a, off a + S1x3200.size a ≤ S22x1600000.size a) (v : valid L n)
    (a : Memref sig .scVector .vmem S8x3200 .f32) (sm : DmaSem sig) :
    (iprop(∃ (gold : Buf (Elt F) (a.view.loc (thr d L))) (w : S1x3200.Idx → Elt F .f32),
        ⌜∀ y, w y = ((xtW).slice (Rect.unit (s := S22x1600000) off S1x3200.size p) (fun _ => rfl)).view.read (Elt F) fx y⌝
        ∗ Transfers.Flight countersEmb (thr d L) (SemLoc.dma sm) (default : HIx 22) NN
          iprop((a.view.loc (thr d L) ↦{fullShare} a.view.writes (Elt F) gold [⟨rowRect, w⟩])
            ∗ (((xtW).slice (Rect.unit (s := S22x1600000) off S1x3200.size p) (fun _ => rfl)).view.loc (thr d L)
                ↦[((xtW).slice (Rect.unit (s := S22x1600000) off S1x3200.size p) (fun _ => rfl)).view.set]{fullShare} fx))) : sProp 𝕄)
      ⊢ inSlotV d L fx a sm n := by
  subst h
  rw [inSlotV_pos d L fx v]
  iintro ⟨%gold, %w, %hw, H⟩
  iexists _
  isplitr
  · ipureintro; exact inRow_fetch d L fx a gold w n hw
  · iexact H

set_option maxHeartbeats 4000000 in
/-- A write-out just issued from a flat staging buffer whose first 3200 elements are the staging row, itself piece
    `n` of the argument row: the piece of the result will hold the row's elements. -/
theorem fl_outV {off : Fin 1 → ℕ} {n : ℕ} (h : off = ![pos L n]) (p : ∀ a, off a + S3200.size a ≤ S1600000.size a) (v : valid L n)
    (ar : Memref sig .scVector .vmem S8x3200 .f32) (a : Memref sig .scVector .vmem S25600 .f32) (sm : DmaSem sig)
    (f0 : Buf (Elt F) ((oW).view.loc (thr d L))) (ga : Buf (Elt F) (ar.view.loc (thr d L))) (gb : Buf (Elt F) (a.view.loc (thr d L)))
    (hl : Lanes d L ar a ga gb 200) (hr : InRow d L fx ar ga n) :
    (iprop(∃ (w : S3200.Idx → Elt F .f32),
        ⌜∀ y, w y = (stg a).view.read (Elt F) gb y⌝
        ∗ Transfers.Flight countersEmb (thr d L) (SemLoc.dma sm) (default : HIx 22) NN
          iprop((((oW).slice (Rect.unit (s := S1600000) off S3200.size p) (fun _ => rfl)).view.loc (thr d L)
                ↦[((oW).slice (Rect.unit (s := S1600000) off S3200.size p) (fun _ => rfl)).view.set]{fullShare}
                  (((oW).slice (Rect.unit (s := S1600000) off S3200.size p) (fun _ => rfl)).view.writes (Elt F) f0 [⟨Rect.whole _, w⟩]))
            ∗ ((stg a).view.loc (thr d L) ↦[(stg a).view.set]{fullShare} gb))
        ∗ (a.view.loc (thr d L) ↦[Finset.univ \ (stg a).view.set]{fullShare} gb)) : sProp 𝕄)
      ⊢ outSlotV d L fx a sm (n + 2) := by
  subst h
  rw [outSlotV_pos d L fx (m := n + 2) ⟨by omega, by simpa using v⟩]
  iintro ⟨%w, %hw, H, R⟩
  have hD : (iprop(((outM L n).view.loc (thr d L) ↦[(outM L n).view.set]{fullShare} ((outM L n).view.writes (Elt F) f0 [⟨Rect.whole _, w⟩]))
          ∗ ((stg a).view.loc (thr d L) ↦[(stg a).view.set]{fullShare} gb)) : sProp 𝕄)
      ⊢ iprop(oqPiece d L fx (n + 2 - 2) ∗ ((stg a).view.loc (thr d L) ↦[(stg a).view.set]{fullShare} gb)) := by
    rw [Nat.add_sub_cancel]
    have e : (((outM L n).view.loc (thr d L) ↦[(outM L n).view.set]{fullShare} ((outM L n).view.writes (Elt F) f0 [⟨Rect.whole _, w⟩])) : sProp 𝕄)
        = oqPiece d L fx n := pointsTo_congr (out_written d L fx ar a n ga gb f0 w hw hl hr v)
    iintro ⟨H1, H2⟩
    isplitl [H1]
    · iapply (Entails.of_eq e); iexact H1
    · iexact H2
  iexists gb
  isplitl [H]
  · iapply (Transfers.Flight_mono countersEmb (thr d L) hD); iexact H
  · iexact R

/-- The result pieces outside the slots before trip `t`: those already written hold the row, the others some contents. -/
def oMix (t n : ℕ) : sProp 𝕄 := if n + 2 < 2 * t then oQ d L fx n else oP (F := F) d L n
theorem oMix_lt {t n : ℕ} (h : n + 2 < 2 * t) : oMix d L fx t n = oQ d L fx n := if_pos h
theorem oMix_ge {t n : ℕ} (h : ¬ n + 2 < 2 * t) : oMix d L fx t n = oP (F := F) d L n := if_neg h
theorem oMix_core (k : ℕ) : bigSep (oCore k) (oMix d L fx k) = bigSep (oCore k) (oMix d L fx (k + 1)) :=
  bigSep_congr fun n hn => by
    have hn' : n + 2 ≠ 2 * k ∧ n + 2 ≠ 2 * k + 1 ∧ n ≠ 2 * k ∧ n ≠ 2 * k + 1 := by
      simp only [oCore, Finset.mem_filter, Finset.mem_range] at hn; exact hn.2
    by_cases h : n + 2 < 2 * k
    · rw [oMix_lt d L fx h, oMix_lt d L fx (by omega)]
    · rw [oMix_ge d L fx h, oMix_ge d L fx (by omega)]
theorem oMix_zero : bigSep (oSet 0) (oMix d L fx 0) = bigSep (Finset.range 18) (oP (F := F) d L) := by
  rw [oSet_zero]; exact bigSep_congr fun n _ => oMix_ge d L fx (by omega)
theorem oMix_end : bigSep (oSet 8) (oMix d L fx 8) = bigSep (oSet 8) (oQ d L fx) :=
  bigSep_congr fun n hn => by
    have hn' : n < 18 ∧ n + 2 ≠ 16 ∧ n + 2 ≠ 17 := by simpa only [oSet, Finset.mem_filter, Finset.mem_range] using hn
    by_cases h : n + 2 < 2 * 8
    · exact oMix_lt d L fx h
    · rw [oMix_ge d L fx h, oP_neg (F := F) d L (by unfold valid; omega), oQ_neg d L fx (by unfold valid; omega)]

/-- The lane-copy loops: before trip `j` the first 16·j elements of the flat staging buffer are the staging row's. -/
def laneV0 (g4 : Buf (Elt F) ((a4).view.loc (thr d L))) (j : ℕ) (_ : PUnit) : sProp 𝕄 :=
  iprop(((a4).view.loc (thr d L) ↦{fullShare} g4) ∗ (∃ g, ((a6).view.loc (thr d L) ↦{fullShare} g) ∗ ⌜Lanes d L a4 a6 g4 g j⌝))
def laneV1 (g5 : Buf (Elt F) ((a5).view.loc (thr d L))) (j : ℕ) (_ : PUnit) : sProp 𝕄 :=
  iprop(((a5).view.loc (thr d L) ↦{fullShare} g5) ∗ (∃ g, ((a7).view.loc (thr d L) ↦{fullShare} g) ∗ ⌜Lanes d L a5 a7 g5 g j⌝))

def invV (t : ℕ) (_ : PUnit) : sProp 𝕄 :=
  iprop(Transfers.MayWaits (thr d L) (none : HIx 22) O
    ∗ (∃ W', ⌜∀ p ∈ W', p ∈ W ∨ p.2 = none⌝ ∗ owes (thr d L) O W')
    ∗ bigSep (xSet t) (xP d L fx) ∗ bigSep (oSet t) (oMix d L fx t)
    ∗ inSlotV d L fx a4 cc11_scratch4.sem (2 * t) ∗ outSlotV d L fx a6 cc11_scratch6.sem (2 * t)
    ∗ inSlotV d L fx a5 cc11_scratch5.sem (2 * t + 1) ∗ outSlotV d L fx a7 cc11_scratch7.sem (2 * t + 1))

/-- After the last trip nothing of the argument row is in a slot: the tile holds all its pieces. -/
theorem xRange_end : bigSep (xSet 8) (xP d L fx) ⊢ bigSep (Finset.range 18) (xP d L fx) := by
  rw [two_out (s := Finset.range 18) (a := 16) (b := 17) (by decide) (by decide) (by decide),
    show ((Finset.range 18).erase 16).erase 17 = xSet 8 by decide]
  iintro H
  isplitr; · iapply (Entails.of_eq (xP_neg d L fx (n := 16) (by unfold valid; omega)).symm); iempintro
  isplitr; · iapply (Entails.of_eq (xP_neg d L fx (n := 17) (by unfold valid; omega)).symm); iempintro
  iexact H
omit [FloatOps F] in
theorem oRange_end (Φ : ℕ → sProp 𝕄) : bigSep (Finset.range 18) Φ = iprop(Φ 14 ∗ Φ 15 ∗ bigSep (oSet 8) Φ) := by
  rw [two_out (s := Finset.range 18) (a := 14) (b := 15) (by decide) (by decide) (by decide),
    show ((Finset.range 18).erase 14).erase 15 = oSet 8 by decide]

/-- What the run starts from and ends with, beside an untouched rest `R`. -/
def runPre (R : sProp 𝕄) : sProp 𝕄 :=
    iprop(Transfers.MayWaits (thr d L) (none : HIx 22) O ∗ owes (thr d L) O W
        ∗ bigSep (Finset.range 18) (xP d L fx) ∗ bigSep (Finset.range 18) (oP (F := F) d L)
        ∗ (∃ g, (a4).view.loc (thr d L) ↦{fullShare} g) ∗ (∃ g, (a5).view.loc (thr d L) ↦{fullShare} g)
        ∗ (∃ g, (a6).view.loc (thr d L) ↦{fullShare} g) ∗ (∃ g, (a7).view.loc (thr d L) ↦{fullShare} g)
        ∗ semVal (thr d L, SemLoc.dma cc11_scratch4.sem) 0 ∗ semVal (thr d L, SemLoc.dma cc11_scratch5.sem) 0
        ∗ semVal (thr d L, SemLoc.dma cc11_scratch6.sem) 0 ∗ semVal (thr d L, SemLoc.dma cc11_scratch7.sem) 0 ∗ R)
def runPost (R : sProp 𝕄) : sProp 𝕄 :=
    iprop(bigSep (Finset.range 18) (xP d L fx) ∗ bigSep (Finset.range 18) (oQ d L fx)
            ∗ (∃ g, (a4).view.loc (thr d L) ↦{fullShare} g) ∗ (∃ g, (a5).view.loc (thr d L) ↦{fullShare} g)
            ∗ (∃ g, (a6).view.loc (thr d L) ↦{fullShare} g) ∗ (∃ g, (a7).view.loc (thr d L) ↦{fullShare} g)
            ∗ semVal (thr d L, SemLoc.dma cc11_scratch4.sem) 0 ∗ semVal (thr d L, SemLoc.dma cc11_scratch5.sem) 0
            ∗ semVal (thr d L, SemLoc.dma cc11_scratch6.sem) 0 ∗ semVal (thr d L, SemLoc.dma cc11_scratch7.sem) 0
            ∗ (∃ W', ⌜∀ p ∈ W', p ∈ W ∨ p.2 = none⌝ ∗ owes (thr d L) O W') ∗ R)

set_option maxHeartbeats 16000000 in
/-- The task's run: from its pieces of the argument row and of the result, the four staging buffers and the four
    semaphores at zero, to the same with every piece of the result holding the row's elements. -/
theorem tile_run (R : sProp 𝕄) :
    runPre d L O W fx R
      ⊢ wp frame (wpE (defs₀ (F := F)) 𝒱₀ (thr d L) none) Set.univ
          (cc11_sc_group L xtW (Memref.isWhole_whole _) oW (Memref.isWhole_whole _) a4 (Memref.isWhole_whole _) a5 (Memref.isWhole_whole _)
            a6 (Memref.isWhole_whole _) a7 (Memref.isWhole_whole _) cc11_scratch4 cc11_scratch5 cc11_scratch6 cc11_scratch7)
          fun _ => runPost d L O W fx R := by
  unfold runPre runPost
  have v0 : valid L 0 := Or.inl (by omega)
  have v1 : valid L 1 := Or.inl (by omega)
  have k11_h7 : k11_cond7 L = 1#1 := cond7_iff L
  iintro ⟨#Hmw, HO, HX, HOut, ⟨%g4, H4⟩, ⟨%g5, H5⟩, ⟨%g6, H6⟩, ⟨%g7, H7⟩, Hs8, Hs9, Hs10, Hs11, HR⟩
  ihave HX := (Entails.of_eq (xRange_split d L fx v0 v1)) $$ HX
  icases HX with ⟨X0, X1, HX⟩
  ihave X0 := (Entails.of_eq (in_congr d L (off_in0 L v0).symm (in_inb L _) (k11_off1_inb L 0) fx)) $$ X0
  ihave X1 := (Entails.of_eq (in_congr d L (off_in1 L v1).symm (in_inb L _) (k11_off1_inb L 1) fx)) $$ X1
  sl_unfold [cc11_sc_group]
  sl_exec
  ihave S8 := (fl_inV d L fx (off_in0 L v0) (k11_off1_inb L 0) v0 a4 cc11_scratch4.sem) $$ [Hs8]
  · iexists _, _
    isplitr
    rotate_left
    · iexact Hs8
    ipureintro; intro y; rfl
  ihave S9 := (fl_inV d L fx (off_in1 L v1) (k11_off1_inb L 1) v1 a5 cc11_scratch5.sem) $$ [Hs9]
  · iexists _, _
    isplitr
    rotate_left
    · iexact Hs9
    ipureintro; intro y; rfl
  sl_for (invV d L O W fx) $$ [HO HX HOut S8 S9 H6 H7 Hs10 Hs11]
  case region =>
    intro (k : Fin k11_t1_loop.trips) acc
    have hk : k.val < 8 := Nat.lt_of_lt_of_eq k.isLt trips1
    unfold invV
    iintro ⟨#Hmw, ⟨%W', %hW', HO⟩, HX, HOut, S8, S10, S9, S11⟩
    by_cases hk1 : 1 ≤ k.val
    · by_cases v3 : valid L (2 * k.val + 3)
      · -- the generic trip: both drains, both pieces worked, both next fetches issued
        have hk6 : k.val ≤ 6 := by unfold valid at v3; omega
        have k11_h1 : k11_cond1 k = 1#1 := (cond1_iff k).mpr (by omega)
        have k11_h2 : k11_cond2 L k = 1#1 := cond2_iff L k
        have k11_h3 : k11_cond3 L k = 1#1 := (cond3_iff L k).mpr (by omega)
        have k11_h4 : k11_cond4 k = 1#1 := (cond4_iff k).mpr (by omega)
        have k11_h5 : k11_cond5 L k = 1#1 := (cond5_iff L k).mpr (by first | (unfold valid big at *; omega) | (unfold big at *; omega) | omega)
        have k11_h6 : k11_cond6 L k = 1#1 := (cond6_iff L k).mpr (by first | (unfold valid big at *; omega) | (unfold big at *; omega) | omega)
        have v0 : valid L (2 * k.val) := by unfold valid big at *; omega
        have v1 : valid L (2 * k.val + 1) := by unfold valid big at *; omega
        have v2 : valid L (2 * k.val + 2) := by unfold valid big at *; omega
        have v3' : valid L (2 * k.val + 3) := by unfold valid big at *; omega
        have hm0 : 2 ≤ 2 * k.val ∧ valid L (2 * k.val - 2) := ⟨by omega, by unfold valid big at *; omega⟩
        have hm1 : 2 ≤ 2 * k.val + 1 ∧ valid L (2 * k.val + 1 - 2) := ⟨by omega, by unfold valid big at *; omega⟩
        ihave S8 := (Entails.of_eq (inSlotV_pos d L fx v0)) $$ S8
        icases S8 with ⟨%g4, %hin4, F8⟩
        ihave S9 := (Entails.of_eq (inSlotV_pos d L fx v1)) $$ S9
        icases S9 with ⟨%g5, %hin5, F9⟩
        ihave S10 := (Entails.of_eq (outSlotV_pos d L fx hm0)) $$ S10
        icases S10 with ⟨%g6, F10, R6⟩
        ihave S11 := (Entails.of_eq (outSlotV_pos d L fx hm1)) $$ S11
        icases S11 with ⟨%g7, F11, R7⟩
        ihave HX := (Entails.of_eq (xSet_out (xP d L fx) k.val hk)) $$ HX
        icases HX with ⟨X2, X3, HX⟩
        ihave X2 := (Entails.of_eq (xP_pos d L fx v2)) $$ X2
        ihave X2 := (Entails.of_eq (in_congr d L (off_6 L k v2).symm (in_inb L _) (k11_off6_inb L k k11_h3) fx)) $$ X2
        ihave X3 := (Entails.of_eq (xP_pos d L fx v3')) $$ X3
        ihave X3 := (Entails.of_eq (in_congr d L (off_11 L k v3').symm (in_inb L _) (k11_off11_inb L k k11_h6) fx)) $$ X3
        ihave HOut := (Entails.of_eq (oSet_out (oMix d L fx k.val) k.val hk)) $$ HOut
        icases HOut with ⟨Y0, Y1, HOut⟩
        ihave Y0 := (Entails.of_eq ((oMix_ge d L fx (t := k.val) (n := 2 * k.val) (by omega)).trans (oP_pos (F := F) d L v0))) $$ Y0
        icases Y0 with ⟨%f0, Y0⟩
        ihave Y0 := (Entails.of_eq (out_congr d L (off_5 L k v0).symm (out_inb L _) (k11_off5_inb L k k11_h2) f0)) $$ Y0
        ihave Y1 := (Entails.of_eq ((oMix_ge d L fx (t := k.val) (n := 2 * k.val + 1) (by omega)).trans (oP_pos (F := F) d L v1))) $$ Y1
        icases Y1 with ⟨%f1, Y1⟩
        ihave Y1 := (Entails.of_eq (out_congr d L (off_10 L k v1).symm (out_inb L _) (k11_off10_inb L k k11_h5) f1)) $$ Y1
        sl_exec
        sl_for (laneV0 d L g4) $$ [F8_dst R6]
        case region =>
          intro (j : Fin k11_t2_loop.trips) _
          unfold laneV0
          iintro ⟨HA, %g, HB, %hl⟩
          sl_exec
          sl_step
          isplitl [HA]; · iexact HA
          iexists _; isplitl [HB]; · iexact HB
          ipureintro; exact lanes_step d L a4 a6 g4 g j _ _ hl
        · unfold laneV0
          isplitl [F8_dst]; · iexact F8_dst
          iexists _; isplitl [R6]; · iexact R6
          ipureintro; exact lanes_zero d L a4 a6 g4 _
        iintro %_ HI
        unfold laneV0
        icases HI with ⟨H4, %g6', H6, %hl6⟩
        have hl6 : Lanes d L a4 a6 g4 g6' 200 := Eq.mp (congrArg (Lanes d L a4 a6 g4 g6') trips2) hl6
        sl_exec
        sl_for (laneV1 d L g5) $$ [F9_dst R7]
        case region =>
          intro (j : Fin k11_t3_loop.trips) _
          unfold laneV1
          iintro ⟨HA, %g, HB, %hl⟩
          sl_exec
          sl_step
          isplitl [HA]; · iexact HA
          iexists _; isplitl [HB]; · iexact HB
          ipureintro; exact lanes_step' d L a5 a7 g5 g j _ _ hl
        · unfold laneV1
          isplitl [F9_dst]; · iexact F9_dst
          iexists _; isplitl [R7]; · iexact R7
          ipureintro; exact lanes_zero d L a5 a7 g5 _
        iintro %_ HI
        unfold laneV1
        icases HI with ⟨H5, %g7', H7, %hl7⟩
        have hl7 : Lanes d L a5 a7 g5 g7' 200 := Eq.mp (congrArg (Lanes d L a5 a7 g5 g7') trips3) hl7
        sl_exec
        sl_step
        isplitr; · iexact Hmw
        isplitl [HO]
        · iexists _; isplitr
          rotate_left
          · iexact HO
          ipureintro; intro p hp
          rcases Finset.mem_insert.mp hp with rfl | hp
          · exact .inr rfl
          rcases Finset.mem_insert.mp hp with rfl | hp
          · exact .inr rfl
          rcases Finset.mem_insert.mp hp with rfl | hp
          · exact .inr rfl
          rcases Finset.mem_insert.mp hp with rfl | hp
          · exact .inr rfl
          exact hW' p hp
        isplitl [HX F8_src F9_src]
        · iapply (Entails.of_eq (xSet_in (xP d L fx) k.val hk).symm)
          isplitl [F8_src]; · iapply (Entails.of_eq (xP_pos d L fx v0).symm); iexact F8_src
          isplitl [F9_src]; · iapply (Entails.of_eq (xP_pos d L fx v1).symm); iexact F9_src
          iexact HX
        isplitl [HOut F10_dst F11_dst]
        · iapply (Entails.of_eq (oSet_in (oMix d L fx (k.val + 1)) k.val hk (by omega)).symm)
          isplitl [F10_dst]; · iapply (Entails.of_eq ((oMix_lt d L fx (t := k.val + 1) (n := 2 * k.val - 2) (by omega)).trans (oQ_pos d L fx hm0.2)).symm); iexact F10_dst
          isplitl [F11_dst]
          · iapply (Entails.of_eq ((oMix_lt d L fx (t := k.val + 1) (n := 2 * k.val - 1) (by omega)).trans (oQ_pos d L fx (n := 2 * k.val - 1) (by have := hm1.2; rwa [show 2 * k.val + 1 - 2 = 2 * k.val - 1 by omega] at this))).symm)
            iapply (Entails.of_eq (congrArg (oqPiece d L fx) (show 2 * k.val + 1 - 2 = 2 * k.val - 1 by omega))); iexact F11_dst
          iapply (Entails.of_eq (oMix_core d L fx k.val)); iexact HOut
        isplitl [F8]
        · iapply (Entails.of_eq (congrArg (inSlotV d L fx a4 cc11_scratch4.sem) (show 2 * k.val + 2 = 2 * (k.val + 1) by ring)))
          iapply (fl_inV d L fx (off_6 L k v2) (k11_off6_inb L k k11_h3) v2 a4 cc11_scratch4.sem); iexists _, _
          isplitr
          rotate_left
          · iexact F8
          ipureintro; intro y; rfl
        isplitl [F10 H6]
        · iapply (Entails.of_eq (congrArg (outSlotV d L fx a6 cc11_scratch6.sem) (show 2 * k.val + 2 = 2 * (k.val + 1) by ring)))
          iapply (fl_outV d L fx (off_5 L k v0) (k11_off5_inb L k k11_h2) v0 a4 a6 cc11_scratch6.sem f0 g4 g6' hl6 hin4); iexists _
          isplitr
          rotate_left
          · isplitl [F10]; · iexact F10
            iexact H6
          ipureintro; intro y; rfl
        isplitl [F9]
        · iapply (Entails.of_eq (congrArg (inSlotV d L fx a5 cc11_scratch5.sem) (show 2 * k.val + 3 = 2 * (k.val + 1) + 1 by ring)))
          iapply (fl_inV d L fx (off_11 L k v3') (k11_off11_inb L k k11_h6) v3' a5 cc11_scratch5.sem); iexists _, _
          isplitr
          rotate_left
          · iexact F9
          ipureintro; intro y; rfl
        · iapply (Entails.of_eq (congrArg (outSlotV d L fx a7 cc11_scratch7.sem) (show 2 * k.val + 1 + 2 = 2 * (k.val + 1) + 1 by ring)))
          iapply (fl_outV d L fx (off_10 L k v1) (k11_off10_inb L k k11_h5) v1 a5 a7 cc11_scratch7.sem f1 g5 g7' hl7 hin5); iexists _
          isplitr
          rotate_left
          · isplitl [F11]; · iexact F11
            iexact H7
          ipureintro; intro y; rfl
      · by_cases h6 : k.val = 6
        · have hb : ¬ big L := fun hb => v3 (Or.inr ⟨by omega, hb⟩)
          -- trip 6 of a tile with fifteen pieces: no sixteenth piece to fetch
          have k11_h1 : k11_cond1 k = 1#1 := (cond1_iff k).mpr (by omega)
          have k11_h2 : k11_cond2 L k = 1#1 := cond2_iff L k
          have k11_h3 : k11_cond3 L k = 1#1 := (cond3_iff L k).mpr (by omega)
          have k11_h4 : k11_cond4 k = 1#1 := (cond4_iff k).mpr (by omega)
          have k11_h5 : k11_cond5 L k = 1#1 := (cond5_iff L k).mpr (by first | (unfold valid big at *; omega) | (unfold big at *; omega) | omega)
          have k11_h6 : ¬ k11_cond6 L k = 1#1 := fun h => absurd ((cond6_iff L k).mp h) (by first | (unfold valid big at *; omega) | (unfold big at *; omega) | omega)
          have v0 : valid L (2 * k.val) := by unfold valid big at *; omega
          have v1 : valid L (2 * k.val + 1) := by unfold valid big at *; omega
          have v2 : valid L (2 * k.val + 2) := by unfold valid big at *; omega
          have v3' : ¬ valid L (2 * k.val + 3) := by unfold valid big at *; omega
          have hm0 : 2 ≤ 2 * k.val ∧ valid L (2 * k.val - 2) := ⟨by omega, by unfold valid big at *; omega⟩
          have hm1 : 2 ≤ 2 * k.val + 1 ∧ valid L (2 * k.val + 1 - 2) := ⟨by omega, by unfold valid big at *; omega⟩
          ihave S8 := (Entails.of_eq (inSlotV_pos d L fx v0)) $$ S8
          icases S8 with ⟨%g4, %hin4, F8⟩
          ihave S9 := (Entails.of_eq (inSlotV_pos d L fx v1)) $$ S9
          icases S9 with ⟨%g5, %hin5, F9⟩
          ihave S10 := (Entails.of_eq (outSlotV_pos d L fx hm0)) $$ S10
          icases S10 with ⟨%g6, F10, R6⟩
          ihave S11 := (Entails.of_eq (outSlotV_pos d L fx hm1)) $$ S11
          icases S11 with ⟨%g7, F11, R7⟩
          ihave HX := (Entails.of_eq (xSet_out (xP d L fx) k.val hk)) $$ HX
          icases HX with ⟨X2, -, HX⟩
          ihave X2 := (Entails.of_eq (xP_pos d L fx v2)) $$ X2
          ihave X2 := (Entails.of_eq (in_congr d L (off_6 L k v2).symm (in_inb L _) (k11_off6_inb L k k11_h3) fx)) $$ X2
          ihave HOut := (Entails.of_eq (oSet_out (oMix d L fx k.val) k.val hk)) $$ HOut
          icases HOut with ⟨Y0, Y1, HOut⟩
          ihave Y0 := (Entails.of_eq ((oMix_ge d L fx (t := k.val) (n := 2 * k.val) (by omega)).trans (oP_pos (F := F) d L v0))) $$ Y0
          icases Y0 with ⟨%f0, Y0⟩
          ihave Y0 := (Entails.of_eq (out_congr d L (off_5 L k v0).symm (out_inb L _) (k11_off5_inb L k k11_h2) f0)) $$ Y0
          ihave Y1 := (Entails.of_eq ((oMix_ge d L fx (t := k.val) (n := 2 * k.val + 1) (by omega)).trans (oP_pos (F := F) d L v1))) $$ Y1
          icases Y1 with ⟨%f1, Y1⟩
          ihave Y1 := (Entails.of_eq (out_congr d L (off_10 L k v1).symm (out_inb L _) (k11_off10_inb L k k11_h5) f1)) $$ Y1
          sl_exec
          sl_for (laneV0 d L g4) $$ [F8_dst R6]
          case region =>
            intro (j : Fin k11_t2_loop.trips) _
            unfold laneV0
            iintro ⟨HA, %g, HB, %hl⟩
            sl_exec
            sl_step
            isplitl [HA]; · iexact HA
            iexists _; isplitl [HB]; · iexact HB
            ipureintro; exact lanes_step d L a4 a6 g4 g j _ _ hl
          · unfold laneV0
            isplitl [F8_dst]; · iexact F8_dst
            iexists _; isplitl [R6]; · iexact R6
            ipureintro; exact lanes_zero d L a4 a6 g4 _
          iintro %_ HI
          unfold laneV0
          icases HI with ⟨H4, %g6', H6, %hl6⟩
          have hl6 : Lanes d L a4 a6 g4 g6' 200 := Eq.mp (congrArg (Lanes d L a4 a6 g4 g6') trips2) hl6
          sl_exec
          sl_for (laneV1 d L g5) $$ [F9_dst R7]
          case region =>
            intro (j : Fin k11_t3_loop.trips) _
            unfold laneV1
            iintro ⟨HA, %g, HB, %hl⟩
            sl_exec
            sl_step
            isplitl [HA]; · iexact HA
            iexists _; isplitl [HB]; · iexact HB
            ipureintro; exact lanes_step' d L a5 a7 g5 g j _ _ hl
          · unfold laneV1
            isplitl [F9_dst]; · iexact F9_dst
            iexists _; isplitl [R7]; · iexact R7
            ipureintro; exact lanes_zero d L a5 a7 g5 _
          iintro %_ HI
          unfold laneV1
          icases HI with ⟨H5, %g7', H7, %hl7⟩
          have hl7 : Lanes d L a5 a7 g5 g7' 200 := Eq.mp (congrArg (Lanes d L a5 a7 g5 g7') trips3) hl7
          sl_exec
          sl_step
          isplitr; · iexact Hmw
          isplitl [HO]
          · iexists _; isplitr
            rotate_left
            · iexact HO
            ipureintro; intro p hp
            rcases Finset.mem_insert.mp hp with rfl | hp
            · exact .inr rfl
            rcases Finset.mem_insert.mp hp with rfl | hp
            · exact .inr rfl
            rcases Finset.mem_insert.mp hp with rfl | hp
            · exact .inr rfl
            rcases Finset.mem_insert.mp hp with rfl | hp
            · exact .inr rfl
            exact hW' p hp
          isplitl [HX F8_src F9_src]
          · iapply (Entails.of_eq (xSet_in (xP d L fx) k.val hk).symm)
            isplitl [F8_src]; · iapply (Entails.of_eq (xP_pos d L fx v0).symm); iexact F8_src
            isplitl [F9_src]; · iapply (Entails.of_eq (xP_pos d L fx v1).symm); iexact F9_src
            iexact HX
          isplitl [HOut F10_dst F11_dst]
          · iapply (Entails.of_eq (oSet_in (oMix d L fx (k.val + 1)) k.val hk (by omega)).symm)
            isplitl [F10_dst]; · iapply (Entails.of_eq ((oMix_lt d L fx (t := k.val + 1) (n := 2 * k.val - 2) (by omega)).trans (oQ_pos d L fx hm0.2)).symm); iexact F10_dst
            isplitl [F11_dst]
            · iapply (Entails.of_eq ((oMix_lt d L fx (t := k.val + 1) (n := 2 * k.val - 1) (by omega)).trans (oQ_pos d L fx (n := 2 * k.val - 1) (by have := hm1.2; rwa [show 2 * k.val + 1 - 2 = 2 * k.val - 1 by omega] at this))).symm)
              iapply (Entails.of_eq (congrArg (oqPiece d L fx) (show 2 * k.val + 1 - 2 = 2 * k.val - 1 by omega))); iexact F11_dst
            iapply (Entails.of_eq (oMix_core d L fx k.val)); iexact HOut
          isplitl [F8]
          · iapply (Entails.of_eq (congrArg (inSlotV d L fx a4 cc11_scratch4.sem) (show 2 * k.val + 2 = 2 * (k.val + 1) by ring)))
            iapply (fl_inV d L fx (off_6 L k v2) (k11_off6_inb L k k11_h3) v2 a4 cc11_scratch4.sem); iexists _, _
            isplitr
            rotate_left
            · iexact F8
            ipureintro; intro y; rfl
          isplitl [F10 H6]
          · iapply (Entails.of_eq (congrArg (outSlotV d L fx a6 cc11_scratch6.sem) (show 2 * k.val + 2 = 2 * (k.val + 1) by ring)))
            iapply (fl_outV d L fx (off_5 L k v0) (k11_off5_inb L k k11_h2) v0 a4 a6 cc11_scratch6.sem f0 g4 g6' hl6 hin4); iexists _
            isplitr
            rotate_left
            · isplitl [F10]; · iexact F10
              iexact H6
            ipureintro; intro y; rfl
          isplitl [H5 F9]
          · iapply (Entails.of_eq (congrArg (inSlotV d L fx a5 cc11_scratch5.sem) (show 2 * k.val + 3 = 2 * (k.val + 1) + 1 by ring)))
            iapply (Entails.of_eq (inSlotV_neg d L fx v3').symm)
            isplitl [H5]; · iexists _; iexact H5
            iexact F9
          · iapply (Entails.of_eq (congrArg (outSlotV d L fx a7 cc11_scratch7.sem) (show 2 * k.val + 1 + 2 = 2 * (k.val + 1) + 1 by ring)))
            iapply (fl_outV d L fx (off_10 L k v1) (k11_off10_inb L k k11_h5) v1 a5 a7 cc11_scratch7.sem f1 g5 g7' hl7 hin5); iexists _
            isplitr
            rotate_left
            · isplitl [F11]; · iexact F11
              iexact H7
            ipureintro; intro y; rfl
        · have h7 : k.val = 7 := by unfold valid at v3; omega
          by_cases hb : big L
          · -- the last trip of a tile with sixteen pieces: nothing more to fetch
            have k11_h1 : k11_cond1 k = 1#1 := (cond1_iff k).mpr (by omega)
            have k11_h2 : k11_cond2 L k = 1#1 := cond2_iff L k
            have k11_h3 : ¬ k11_cond3 L k = 1#1 := fun h => absurd ((cond3_iff L k).mp h) (by omega)
            have k11_h4 : k11_cond4 k = 1#1 := (cond4_iff k).mpr (by omega)
            have k11_h5 : k11_cond5 L k = 1#1 := (cond5_iff L k).mpr (by first | (unfold valid big at *; omega) | (unfold big at *; omega) | omega)
            have k11_h6 : ¬ k11_cond6 L k = 1#1 := fun h => absurd ((cond6_iff L k).mp h) (by first | (unfold valid big at *; omega) | (unfold big at *; omega) | omega)
            have v0 : valid L (2 * k.val) := by unfold valid big at *; omega
            have v1 : valid L (2 * k.val + 1) := by unfold valid big at *; omega
            have v2 : ¬ valid L (2 * k.val + 2) := by unfold valid big at *; omega
            have v3' : ¬ valid L (2 * k.val + 3) := by unfold valid big at *; omega
            have hm0 : 2 ≤ 2 * k.val ∧ valid L (2 * k.val - 2) := ⟨by omega, by unfold valid big at *; omega⟩
            have hm1 : 2 ≤ 2 * k.val + 1 ∧ valid L (2 * k.val + 1 - 2) := ⟨by omega, by unfold valid big at *; omega⟩
            ihave S8 := (Entails.of_eq (inSlotV_pos d L fx v0)) $$ S8
            icases S8 with ⟨%g4, %hin4, F8⟩
            ihave S9 := (Entails.of_eq (inSlotV_pos d L fx v1)) $$ S9
            icases S9 with ⟨%g5, %hin5, F9⟩
            ihave S10 := (Entails.of_eq (outSlotV_pos d L fx hm0)) $$ S10
            icases S10 with ⟨%g6, F10, R6⟩
            ihave S11 := (Entails.of_eq (outSlotV_pos d L fx hm1)) $$ S11
            icases S11 with ⟨%g7, F11, R7⟩
            ihave HX := (Entails.of_eq (xSet_out (xP d L fx) k.val hk)) $$ HX
            icases HX with ⟨-, -, HX⟩
            ihave HOut := (Entails.of_eq (oSet_out (oMix d L fx k.val) k.val hk)) $$ HOut
            icases HOut with ⟨Y0, Y1, HOut⟩
            ihave Y0 := (Entails.of_eq ((oMix_ge d L fx (t := k.val) (n := 2 * k.val) (by omega)).trans (oP_pos (F := F) d L v0))) $$ Y0
            icases Y0 with ⟨%f0, Y0⟩
            ihave Y0 := (Entails.of_eq (out_congr d L (off_5 L k v0).symm (out_inb L _) (k11_off5_inb L k k11_h2) f0)) $$ Y0
            ihave Y1 := (Entails.of_eq ((oMix_ge d L fx (t := k.val) (n := 2 * k.val + 1) (by omega)).trans (oP_pos (F := F) d L v1))) $$ Y1
            icases Y1 with ⟨%f1, Y1⟩
            ihave Y1 := (Entails.of_eq (out_congr d L (off_10 L k v1).symm (out_inb L _) (k11_off10_inb L k k11_h5) f1)) $$ Y1
            sl_exec
            sl_for (laneV0 d L g4) $$ [F8_dst R6]
            case region =>
              intro (j : Fin k11_t2_loop.trips) _
              unfold laneV0
              iintro ⟨HA, %g, HB, %hl⟩
              sl_exec
              sl_step
              isplitl [HA]; · iexact HA
              iexists _; isplitl [HB]; · iexact HB
              ipureintro; exact lanes_step d L a4 a6 g4 g j _ _ hl
            · unfold laneV0
              isplitl [F8_dst]; · iexact F8_dst
              iexists _; isplitl [R6]; · iexact R6
              ipureintro; exact lanes_zero d L a4 a6 g4 _
            iintro %_ HI
            unfold laneV0
            icases HI with ⟨H4, %g6', H6, %hl6⟩
            have hl6 : Lanes d L a4 a6 g4 g6' 200 := Eq.mp (congrArg (Lanes d L a4 a6 g4 g6') trips2) hl6
            sl_exec
            sl_for (laneV1 d L g5) $$ [F9_dst R7]
            case region =>
              intro (j : Fin k11_t3_loop.trips) _
              unfold laneV1
              iintro ⟨HA, %g, HB, %hl⟩
              sl_exec
              sl_step
              isplitl [HA]; · iexact HA
              iexists _; isplitl [HB]; · iexact HB
              ipureintro; exact lanes_step' d L a5 a7 g5 g j _ _ hl
            · unfold laneV1
              isplitl [F9_dst]; · iexact F9_dst
              iexists _; isplitl [R7]; · iexact R7
              ipureintro; exact lanes_zero d L a5 a7 g5 _
            iintro %_ HI
            unfold laneV1
            icases HI with ⟨H5, %g7', H7, %hl7⟩
            have hl7 : Lanes d L a5 a7 g5 g7' 200 := Eq.mp (congrArg (Lanes d L a5 a7 g5 g7') trips3) hl7
            sl_exec
            sl_step
            isplitr; · iexact Hmw
            isplitl [HO]
            · iexists _; isplitr
              rotate_left
              · iexact HO
              ipureintro; intro p hp
              rcases Finset.mem_insert.mp hp with rfl | hp
              · exact .inr rfl
              rcases Finset.mem_insert.mp hp with rfl | hp
              · exact .inr rfl
              rcases Finset.mem_insert.mp hp with rfl | hp
              · exact .inr rfl
              rcases Finset.mem_insert.mp hp with rfl | hp
              · exact .inr rfl
              exact hW' p hp
            isplitl [HX F8_src F9_src]
            · iapply (Entails.of_eq (xSet_in (xP d L fx) k.val hk).symm)
              isplitl [F8_src]; · iapply (Entails.of_eq (xP_pos d L fx v0).symm); iexact F8_src
              isplitl [F9_src]; · iapply (Entails.of_eq (xP_pos d L fx v1).symm); iexact F9_src
              iexact HX
            isplitl [HOut F10_dst F11_dst]
            · iapply (Entails.of_eq (oSet_in (oMix d L fx (k.val + 1)) k.val hk (by omega)).symm)
              isplitl [F10_dst]; · iapply (Entails.of_eq ((oMix_lt d L fx (t := k.val + 1) (n := 2 * k.val - 2) (by omega)).trans (oQ_pos d L fx hm0.2)).symm); iexact F10_dst
              isplitl [F11_dst]
              · iapply (Entails.of_eq ((oMix_lt d L fx (t := k.val + 1) (n := 2 * k.val - 1) (by omega)).trans (oQ_pos d L fx (n := 2 * k.val - 1) (by have := hm1.2; rwa [show 2 * k.val + 1 - 2 = 2 * k.val - 1 by omega] at this))).symm)
                iapply (Entails.of_eq (congrArg (oqPiece d L fx) (show 2 * k.val + 1 - 2 = 2 * k.val - 1 by omega))); iexact F11_dst
              iapply (Entails.of_eq (oMix_core d L fx k.val)); iexact HOut
            isplitl [H4 F8]
            · iapply (Entails.of_eq (congrArg (inSlotV d L fx a4 cc11_scratch4.sem) (show 2 * k.val + 2 = 2 * (k.val + 1) by ring)))
              iapply (Entails.of_eq (inSlotV_neg d L fx v2).symm)
              isplitl [H4]; · iexists _; iexact H4
              iexact F8
            isplitl [F10 H6]
            · iapply (Entails.of_eq (congrArg (outSlotV d L fx a6 cc11_scratch6.sem) (show 2 * k.val + 2 = 2 * (k.val + 1) by ring)))
              iapply (fl_outV d L fx (off_5 L k v0) (k11_off5_inb L k k11_h2) v0 a4 a6 cc11_scratch6.sem f0 g4 g6' hl6 hin4); iexists _
              isplitr
              rotate_left
              · isplitl [F10]; · iexact F10
                iexact H6
              ipureintro; intro y; rfl
            isplitl [H5 F9]
            · iapply (Entails.of_eq (congrArg (inSlotV d L fx a5 cc11_scratch5.sem) (show 2 * k.val + 3 = 2 * (k.val + 1) + 1 by ring)))
              iapply (Entails.of_eq (inSlotV_neg d L fx v3').symm)
              isplitl [H5]; · iexists _; iexact H5
              iexact F9
            · iapply (Entails.of_eq (congrArg (outSlotV d L fx a7 cc11_scratch7.sem) (show 2 * k.val + 1 + 2 = 2 * (k.val + 1) + 1 by ring)))
              iapply (fl_outV d L fx (off_10 L k v1) (k11_off10_inb L k k11_h5) v1 a5 a7 cc11_scratch7.sem f1 g5 g7' hl7 hin5); iexists _
              isplitr
              rotate_left
              · isplitl [F11]; · iexact F11
                iexact H7
              ipureintro; intro y; rfl
          · -- the last trip of a tile with fifteen pieces: the second slot only drains
            have k11_h1 : k11_cond1 k = 1#1 := (cond1_iff k).mpr (by omega)
            have k11_h2 : k11_cond2 L k = 1#1 := cond2_iff L k
            have k11_h3 : ¬ k11_cond3 L k = 1#1 := fun h => absurd ((cond3_iff L k).mp h) (by omega)
            have k11_h4 : k11_cond4 k = 1#1 := (cond4_iff k).mpr (by omega)
            have k11_h5 : ¬ k11_cond5 L k = 1#1 := fun h => absurd ((cond5_iff L k).mp h) (by first | (unfold valid big at *; omega) | (unfold big at *; omega) | omega)
            have k11_h6 : ¬ k11_cond6 L k = 1#1 := fun h => absurd ((cond6_iff L k).mp h) (by first | (unfold valid big at *; omega) | (unfold big at *; omega) | omega)
            have v0 : valid L (2 * k.val) := by unfold valid big at *; omega
            have v1 : ¬ valid L (2 * k.val + 1) := by unfold valid big at *; omega
            have v2 : ¬ valid L (2 * k.val + 2) := by unfold valid big at *; omega
            have v3' : ¬ valid L (2 * k.val + 3) := by unfold valid big at *; omega
            have hm0 : 2 ≤ 2 * k.val ∧ valid L (2 * k.val - 2) := ⟨by omega, by unfold valid big at *; omega⟩
            have hm1 : 2 ≤ 2 * k.val + 1 ∧ valid L (2 * k.val + 1 - 2) := ⟨by omega, by unfold valid big at *; omega⟩
            ihave S8 := (Entails.of_eq (inSlotV_pos d L fx v0)) $$ S8
            icases S8 with ⟨%g4, %hin4, F8⟩
            ihave S9 := (Entails.of_eq (inSlotV_neg d L fx v1)) $$ S9
            icases S9 with ⟨⟨%g5, H5⟩, F9⟩
            ihave S10 := (Entails.of_eq (outSlotV_pos d L fx hm0)) $$ S10
            icases S10 with ⟨%g6, F10, R6⟩
            ihave S11 := (Entails.of_eq (outSlotV_pos d L fx hm1)) $$ S11
            icases S11 with ⟨%g7, F11, R7⟩
            ihave HX := (Entails.of_eq (xSet_out (xP d L fx) k.val hk)) $$ HX
            icases HX with ⟨-, -, HX⟩
            ihave HOut := (Entails.of_eq (oSet_out (oMix d L fx k.val) k.val hk)) $$ HOut
            icases HOut with ⟨Y0, -, HOut⟩
            ihave Y0 := (Entails.of_eq ((oMix_ge d L fx (t := k.val) (n := 2 * k.val) (by omega)).trans (oP_pos (F := F) d L v0))) $$ Y0
            icases Y0 with ⟨%f0, Y0⟩
            ihave Y0 := (Entails.of_eq (out_congr d L (off_5 L k v0).symm (out_inb L _) (k11_off5_inb L k k11_h2) f0)) $$ Y0
            sl_exec
            sl_for (laneV0 d L g4) $$ [F8_dst R6]
            case region =>
              intro (j : Fin k11_t2_loop.trips) _
              unfold laneV0
              iintro ⟨HA, %g, HB, %hl⟩
              sl_exec
              sl_step
              isplitl [HA]; · iexact HA
              iexists _; isplitl [HB]; · iexact HB
              ipureintro; exact lanes_step d L a4 a6 g4 g j _ _ hl
            · unfold laneV0
              isplitl [F8_dst]; · iexact F8_dst
              iexists _; isplitl [R6]; · iexact R6
              ipureintro; exact lanes_zero d L a4 a6 g4 _
            iintro %_ HI
            unfold laneV0
            icases HI with ⟨H4, %g6', H6, %hl6⟩
            have hl6 : Lanes d L a4 a6 g4 g6' 200 := Eq.mp (congrArg (Lanes d L a4 a6 g4 g6') trips2) hl6
            sl_exec
            sl_step
            isplitr; · iexact Hmw
            isplitl [HO]
            · iexists _; isplitr
              rotate_left
              · iexact HO
              ipureintro; intro p hp
              rcases Finset.mem_insert.mp hp with rfl | hp
              · exact .inr rfl
              rcases Finset.mem_insert.mp hp with rfl | hp
              · exact .inr rfl
              rcases Finset.mem_insert.mp hp with rfl | hp
              · exact .inr rfl
              exact hW' p hp
            isplitl [HX F8_src]
            · iapply (Entails.of_eq (xSet_in (xP d L fx) k.val hk).symm)
              isplitl [F8_src]; · iapply (Entails.of_eq (xP_pos d L fx v0).symm); iexact F8_src
              isplitr; · iapply (Entails.of_eq (xP_neg d L fx v1).symm); iempintro
              iexact HX
            isplitl [HOut F10_dst F11_dst]
            · iapply (Entails.of_eq (oSet_in (oMix d L fx (k.val + 1)) k.val hk (by omega)).symm)
              isplitl [F10_dst]; · iapply (Entails.of_eq ((oMix_lt d L fx (t := k.val + 1) (n := 2 * k.val - 2) (by omega)).trans (oQ_pos d L fx hm0.2)).symm); iexact F10_dst
              isplitl [F11_dst]
              · iapply (Entails.of_eq ((oMix_lt d L fx (t := k.val + 1) (n := 2 * k.val - 1) (by omega)).trans (oQ_pos d L fx (n := 2 * k.val - 1) (by have := hm1.2; rwa [show 2 * k.val + 1 - 2 = 2 * k.val - 1 by omega] at this))).symm)
                iapply (Entails.of_eq (congrArg (oqPiece d L fx) (show 2 * k.val + 1 - 2 = 2 * k.val - 1 by omega))); iexact F11_dst
              iapply (Entails.of_eq (oMix_core d L fx k.val)); iexact HOut
            isplitl [H4 F8]
            · iapply (Entails.of_eq (congrArg (inSlotV d L fx a4 cc11_scratch4.sem) (show 2 * k.val + 2 = 2 * (k.val + 1) by ring)))
              iapply (Entails.of_eq (inSlotV_neg d L fx v2).symm)
              isplitl [H4]; · iexists _; iexact H4
              iexact F8
            isplitl [F10 H6]
            · iapply (Entails.of_eq (congrArg (outSlotV d L fx a6 cc11_scratch6.sem) (show 2 * k.val + 2 = 2 * (k.val + 1) by ring)))
              iapply (fl_outV d L fx (off_5 L k v0) (k11_off5_inb L k k11_h2) v0 a4 a6 cc11_scratch6.sem f0 g4 g6' hl6 hin4); iexists _
              isplitr
              rotate_left
              · isplitl [F10]; · iexact F10
                iexact H6
              ipureintro; intro y; rfl
            isplitl [H5 F9]
            · iapply (Entails.of_eq (congrArg (inSlotV d L fx a5 cc11_scratch5.sem) (show 2 * k.val + 3 = 2 * (k.val + 1) + 1 by ring)))
              iapply (Entails.of_eq (inSlotV_neg d L fx v3').symm)
              isplitl [H5]; · iexists _; iexact H5
              iexact F9
            · iapply (Entails.of_eq (outSlotV_neg d L fx (m := 2 * (k.val + 1) + 1) (by intro h; apply v1; have := h.2; rwa [show 2 * (k.val + 1) + 1 - 2 = 2 * k.val + 1 by omega] at this)).symm)
              isplitl [R7]; · iexists _; iexact R7
              iexact F11
    · have hk0 : k.val = 0 := by omega
      -- the first trip: nothing to drain
      have k11_h1 : ¬ k11_cond1 k = 1#1 := fun h => absurd ((cond1_iff k).mp h) (by omega)
      have k11_h2 : k11_cond2 L k = 1#1 := cond2_iff L k
      have k11_h3 : k11_cond3 L k = 1#1 := (cond3_iff L k).mpr (by omega)
      have k11_h4 : ¬ k11_cond4 k = 1#1 := fun h => absurd ((cond4_iff k).mp h) (by omega)
      have k11_h5 : k11_cond5 L k = 1#1 := (cond5_iff L k).mpr (by first | (unfold valid big at *; omega) | (unfold big at *; omega) | omega)
      have k11_h6 : k11_cond6 L k = 1#1 := (cond6_iff L k).mpr (by first | (unfold valid big at *; omega) | (unfold big at *; omega) | omega)
      have v0 : valid L (2 * k.val) := by unfold valid big at *; omega
      have v1 : valid L (2 * k.val + 1) := by unfold valid big at *; omega
      have v2 : valid L (2 * k.val + 2) := by unfold valid big at *; omega
      have v3' : valid L (2 * k.val + 3) := by unfold valid big at *; omega
      have hm0 : ¬ (2 ≤ 2 * k.val ∧ valid L (2 * k.val - 2)) := by omega
      have hm1 : ¬ (2 ≤ 2 * k.val + 1 ∧ valid L (2 * k.val + 1 - 2)) := by omega
      ihave S8 := (Entails.of_eq (inSlotV_pos d L fx v0)) $$ S8
      icases S8 with ⟨%g4, %hin4, F8⟩
      ihave S9 := (Entails.of_eq (inSlotV_pos d L fx v1)) $$ S9
      icases S9 with ⟨%g5, %hin5, F9⟩
      ihave S10 := (Entails.of_eq (outSlotV_neg d L fx hm0)) $$ S10
      icases S10 with ⟨⟨%g6, R6⟩, F10⟩
      ihave S11 := (Entails.of_eq (outSlotV_neg d L fx hm1)) $$ S11
      icases S11 with ⟨⟨%g7, R7⟩, F11⟩
      ihave HX := (Entails.of_eq (xSet_out (xP d L fx) k.val hk)) $$ HX
      icases HX with ⟨X2, X3, HX⟩
      ihave X2 := (Entails.of_eq (xP_pos d L fx v2)) $$ X2
      ihave X2 := (Entails.of_eq (in_congr d L (off_6 L k v2).symm (in_inb L _) (k11_off6_inb L k k11_h3) fx)) $$ X2
      ihave X3 := (Entails.of_eq (xP_pos d L fx v3')) $$ X3
      ihave X3 := (Entails.of_eq (in_congr d L (off_11 L k v3').symm (in_inb L _) (k11_off11_inb L k k11_h6) fx)) $$ X3
      ihave HOut := (Entails.of_eq (oSet_out (oMix d L fx k.val) k.val hk)) $$ HOut
      icases HOut with ⟨Y0, Y1, HOut⟩
      ihave Y0 := (Entails.of_eq ((oMix_ge d L fx (t := k.val) (n := 2 * k.val) (by omega)).trans (oP_pos (F := F) d L v0))) $$ Y0
      icases Y0 with ⟨%f0, Y0⟩
      ihave Y0 := (Entails.of_eq (out_congr d L (off_5 L k v0).symm (out_inb L _) (k11_off5_inb L k k11_h2) f0)) $$ Y0
      ihave Y1 := (Entails.of_eq ((oMix_ge d L fx (t := k.val) (n := 2 * k.val + 1) (by omega)).trans (oP_pos (F := F) d L v1))) $$ Y1
      icases Y1 with ⟨%f1, Y1⟩
      ihave Y1 := (Entails.of_eq (out_congr d L (off_10 L k v1).symm (out_inb L _) (k11_off10_inb L k k11_h5) f1)) $$ Y1
      sl_exec
      sl_for (laneV0 d L g4) $$ [F8_dst R6]
      case region =>
        intro (j : Fin k11_t2_loop.trips) _
        unfold laneV0
        iintro ⟨HA, %g, HB, %hl⟩
        sl_exec
        sl_step
        isplitl [HA]; · iexact HA
        iexists _; isplitl [HB]; · iexact HB
        ipureintro; exact lanes_step d L a4 a6 g4 g j _ _ hl
      · unfold laneV0
        isplitl [F8_dst]; · iexact F8_dst
        iexists _; isplitl [R6]; · iexact R6
        ipureintro; exact lanes_zero d L a4 a6 g4 _
      iintro %_ HI
      unfold laneV0
      icases HI with ⟨H4, %g6', H6, %hl6⟩
      have hl6 : Lanes d L a4 a6 g4 g6' 200 := Eq.mp (congrArg (Lanes d L a4 a6 g4 g6') trips2) hl6
      sl_exec
      sl_for (laneV1 d L g5) $$ [F9_dst R7]
      case region =>
        intro (j : Fin k11_t3_loop.trips) _
        unfold laneV1
        iintro ⟨HA, %g, HB, %hl⟩
        sl_exec
        sl_step
        isplitl [HA]; · iexact HA
        iexists _; isplitl [HB]; · iexact HB
        ipureintro; exact lanes_step' d L a5 a7 g5 g j _ _ hl
      · unfold laneV1
        isplitl [F9_dst]; · iexact F9_dst
        iexists _; isplitl [R7]; · iexact R7
        ipureintro; exact lanes_zero d L a5 a7 g5 _
      iintro %_ HI
      unfold laneV1
      icases HI with ⟨H5, %g7', H7, %hl7⟩
      have hl7 : Lanes d L a5 a7 g5 g7' 200 := Eq.mp (congrArg (Lanes d L a5 a7 g5 g7') trips3) hl7
      sl_exec
      sl_step
      isplitr; · iexact Hmw
      isplitl [HO]
      · iexists _; isplitr
        rotate_left
        · iexact HO
        ipureintro; intro p hp
        rcases Finset.mem_insert.mp hp with rfl | hp
        · exact .inr rfl
        rcases Finset.mem_insert.mp hp with rfl | hp
        · exact .inr rfl
        exact hW' p hp
      isplitl [HX F8_src F9_src]
      · iapply (Entails.of_eq (xSet_in (xP d L fx) k.val hk).symm)
        isplitl [F8_src]; · iapply (Entails.of_eq (xP_pos d L fx v0).symm); iexact F8_src
        isplitl [F9_src]; · iapply (Entails.of_eq (xP_pos d L fx v1).symm); iexact F9_src
        iexact HX
      isplitl [HOut]
      · iapply (Entails.of_eq (congrArg (fun s => bigSep s (oMix d L fx (k.val + 1))) (show oCore k.val = oSet (k.val + 1) by rw [hk0]; decide)))
        iapply (Entails.of_eq (oMix_core d L fx k.val)); iexact HOut
      isplitl [F8]
      · iapply (Entails.of_eq (congrArg (inSlotV d L fx a4 cc11_scratch4.sem) (show 2 * k.val + 2 = 2 * (k.val + 1) by ring)))
        iapply (fl_inV d L fx (off_6 L k v2) (k11_off6_inb L k k11_h3) v2 a4 cc11_scratch4.sem); iexists _, _
        isplitr
        rotate_left
        · iexact F8
        ipureintro; intro y; rfl
      isplitl [F10 H6]
      · iapply (Entails.of_eq (congrArg (outSlotV d L fx a6 cc11_scratch6.sem) (show 2 * k.val + 2 = 2 * (k.val + 1) by ring)))
        iapply (fl_outV d L fx (off_5 L k v0) (k11_off5_inb L k k11_h2) v0 a4 a6 cc11_scratch6.sem f0 g4 g6' hl6 hin4); iexists _
        isplitr
        rotate_left
        · isplitl [F10]; · iexact F10
          iexact H6
        ipureintro; intro y; rfl
      isplitl [F9]
      · iapply (Entails.of_eq (congrArg (inSlotV d L fx a5 cc11_scratch5.sem) (show 2 * k.val + 3 = 2 * (k.val + 1) + 1 by ring)))
        iapply (fl_inV d L fx (off_11 L k v3') (k11_off11_inb L k k11_h6) v3' a5 cc11_scratch5.sem); iexists _, _
        isplitr
        rotate_left
        · iexact F9
        ipureintro; intro y; rfl
      · iapply (Entails.of_eq (congrArg (outSlotV d L fx a7 cc11_scratch7.sem) (show 2 * k.val + 1 + 2 = 2 * (k.val + 1) + 1 by ring)))
        iapply (fl_outV d L fx (off_10 L k v1) (k11_off10_inb L k k11_h5) v1 a5 a7 cc11_scratch7.sem f1 g5 g7' hl7 hin5); iexists _
        isplitr
        rotate_left
        · isplitl [F11]; · iexact F11
          iexact H7
        ipureintro; intro y; rfl
  · unfold invV
    isplitr; · iexact Hmw
    isplitl [HO]
    · iexists W; isplitr
      · ipureintro; exact fun p hp => .inl hp
      · iexact HO
    isplitl [HX]; · iexact HX
    isplitl [HOut]; · iapply (Entails.of_eq (oMix_zero d L fx).symm); iexact HOut
    isplitl [S8]; · iexact S8
    isplitl [H6 Hs10]
    · rw [outSlotV_neg d L fx (by omega)]; isplitl [H6]; · iexists _; iexact H6
      iexact Hs10
    isplitl [S9]; · iexact S9
    rw [outSlotV_neg d L fx (by omega)]; isplitl [H7]; · iexists _; iexact H7
    iexact Hs11
  iintro %acc' HI
  ihave HI := (Entails.of_eq (congrArg (fun t => invV d L O W fx t acc') trips1)) $$ HI
  unfold invV
  icases HI with ⟨-, ⟨%W', %hW', HO⟩, HX, HOut, S8, S10, S9, S11⟩
  have nv16 : ¬ valid L (2 * 8) := by unfold valid; omega
  have nv17 : ¬ valid L (2 * 8 + 1) := by unfold valid; omega
  have hm14 : 2 ≤ 2 * 8 ∧ valid L (2 * 8 - 2) := ⟨by omega, Or.inl (by omega)⟩
  ihave S8 := (Entails.of_eq (inSlotV_neg d L fx nv16)) $$ S8
  icases S8 with ⟨⟨%g4', H4⟩, Hs8⟩
  ihave S9 := (Entails.of_eq (inSlotV_neg d L fx nv17)) $$ S9
  icases S9 with ⟨⟨%g5', H5⟩, Hs9⟩
  ihave S10 := (Entails.of_eq (outSlotV_pos d L fx hm14)) $$ S10
  icases S10 with ⟨%g6', F10, R6⟩
  by_cases hb : big L
  · have k11_h8 : k11_cond8 L = 1#1 := (cond8_iff L).mpr hb
    have hm15 : 2 ≤ 2 * 8 + 1 ∧ valid L (2 * 8 + 1 - 2) := ⟨by omega, Or.inr ⟨by omega, hb⟩⟩
    ihave S11 := (Entails.of_eq (outSlotV_pos d L fx hm15)) $$ S11
    icases S11 with ⟨%g7', F11, R7⟩
    sl_exec
    sl_step
    isplitl [HX]; · iapply (xRange_end d L fx); iexact HX
    isplitl [HOut F10_dst F11_dst]
    · iapply (Entails.of_eq (oRange_end (oQ d L fx)).symm)
      isplitl [F10_dst]; · iapply (Entails.of_eq (oQ_pos d L fx hm14.2).symm); iexact F10_dst
      isplitl [F11_dst]; · iapply (Entails.of_eq (oQ_pos d L fx hm15.2).symm); iexact F11_dst
      iapply (Entails.of_eq (oMix_end d L fx)); iexact HOut
    isplitl [H4]; · iexists _; iexact H4
    isplitl [H5]; · iexists _; iexact H5
    isplitl [R6]; · iexists _; iexact R6
    isplitl [R7]; · iexists _; iexact R7
    isplitl [Hs8]; · iexact Hs8
    isplitl [Hs9]; · iexact Hs9
    isplitl [F10]; · iexact F10
    isplitl [F11]; · iexact F11
    isplitl [HO]
    · iexists _; isplitr
      rotate_left
      · iexact HO
      ipureintro; intro p hp
      rcases Finset.mem_insert.mp hp with rfl | hp
      · exact .inr rfl
      rcases Finset.mem_insert.mp hp with rfl | hp
      · exact .inr rfl
      exact hW' p hp
    iexact HR
  · have k11_h8 : ¬ k11_cond8 L = 1#1 := fun h => hb ((cond8_iff L).mp h)
    have hm15 : ¬ (2 ≤ 2 * 8 + 1 ∧ valid L (2 * 8 + 1 - 2)) := by intro h; have := h.2; unfold valid at this; omega
    ihave S11 := (Entails.of_eq (outSlotV_neg d L fx hm15)) $$ S11
    icases S11 with ⟨⟨%g7', R7⟩, F11⟩
    sl_exec
    sl_step
    isplitl [HX]; · iapply (xRange_end d L fx); iexact HX
    isplitl [HOut F10_dst]
    · iapply (Entails.of_eq (oRange_end (oQ d L fx)).symm)
      isplitl [F10_dst]; · iapply (Entails.of_eq (oQ_pos d L fx hm14.2).symm); iexact F10_dst
      isplitr; · iapply (Entails.of_eq (oQ_neg d L fx (n := 15) (by unfold valid; omega)).symm); iempintro
      iapply (Entails.of_eq (oMix_end d L fx)); iexact HOut
    isplitl [H4]; · iexists _; iexact H4
    isplitl [H5]; · iexists _; iexact H5
    isplitl [R6]; · iexists _; iexact R6
    isplitl [R7]; · iexists _; iexact R7
    isplitl [Hs8]; · iexact Hs8
    isplitl [Hs9]; · iexact Hs9
    isplitl [F10]; · iexact F10
    isplitl [F11]; · iexact F11
    isplitl [HO]
    · iexists _; isplitr
      rotate_left
      · iexact HO
      ipureintro; intro p hp
      rcases Finset.mem_insert.mp hp with rfl | hp
      · exact .inr rfl
      exact hW' p hp
    iexact HR

/-! The subcore's scoped storage: the four staging buffers and the four semaphores of this call, and the rest. -/

abbrev c8 : GSem nD τ sig := (thr d L, SemLoc.dma cc11_scratch4.sem)
abbrev c9 : GSem nD τ sig := (thr d L, SemLoc.dma cc11_scratch5.sem)
abbrev c10 : GSem nD τ sig := (thr d L, SemLoc.dma cc11_scratch6.sem)
abbrev c11 : GSem nD τ sig := (thr d L, SemLoc.dma cc11_scratch7.sem)

omit [FloatOps F] in
theorem ownSems0_V :
    (ownSems0 (thr d L) : sProp 𝕄)
      = iprop(semVal (c8 d L) 0 ∗ semVal (c9 d L) 0 ∗ semVal (c10 d L) 0 ∗ semVal (c11 d L) 0
          ∗ bigSep (((((ownCells (thr d L)).erase (c8 d L)).erase (c9 d L)).erase (c10 d L)).erase (c11 d L)) fun g => semVal g 0) := by
  unfold SparseCore.Cfg.ownSems0
  rw [SparseCore.bigSep_erase' ((mem_ownCells (g := c8 d L)).mpr ⟨rfl, by
      show (SemLoc.dma cc11_scratch4.sem : SemLoc sig).isScoped .scVector = true; decide⟩),
    SparseCore.bigSep_erase' (Finset.mem_erase.mpr ⟨fun e => absurd (Prod.mk.inj e).2 (by decide), (mem_ownCells (g := c9 d L)).mpr ⟨rfl, by
      show (SemLoc.dma cc11_scratch5.sem : SemLoc sig).isScoped .scVector = true; decide⟩⟩),
    SparseCore.bigSep_erase' (Finset.mem_erase.mpr ⟨fun e => absurd (Prod.mk.inj e).2 (by decide), Finset.mem_erase.mpr ⟨fun e => absurd (Prod.mk.inj e).2 (by decide),
      (mem_ownCells (g := c10 d L)).mpr ⟨rfl, by show (SemLoc.dma cc11_scratch6.sem : SemLoc sig).isScoped .scVector = true; decide⟩⟩⟩),
    SparseCore.bigSep_erase' (Finset.mem_erase.mpr ⟨fun e => absurd (Prod.mk.inj e).2 (by decide), Finset.mem_erase.mpr ⟨fun e => absurd (Prod.mk.inj e).2 (by decide),
      Finset.mem_erase.mpr ⟨fun e => absurd (Prod.mk.inj e).2 (by decide),
      (mem_ownCells (g := c11 d L)).mpr ⟨rfl, by show (SemLoc.dma cc11_scratch7.sem : SemLoc sig).isScoped .scVector = true; decide⟩⟩⟩⟩)]

abbrev pV (L : grid11.Coords) : Proc τ := Proc.scVector (cV L) (jV L)

omit [FloatOps F] in
theorem ownBufs_V :
    (ownBufs (thr d L) : sProp 𝕄)
      = iprop((∃ f, (thr d L).loc cc11_scratch0 ↦{fullShare} f) ∗ (∃ f, (thr d L).loc cc11_scratch1 ↦{fullShare} f)
          ∗ (∃ f, (thr d L).loc cc11_scratch2 ↦{fullShare} f) ∗ (∃ f, (thr d L).loc cc11_scratch3 ↦{fullShare} f)
          ∗ bigSep (((((ownRefs (τ := τ) (pV L)).erase ((pV L).devRef cc11_scratch0)).erase ((pV L).devRef cc11_scratch1)).erase
              ((pV L).devRef cc11_scratch2)).erase ((pV L).devRef cc11_scratch3))
              fun b => iprop(∃ f, ((d, b) : Loc nD τ sig) ↦{fullShare} f)) := by
  unfold SparseCore.Cfg.ownBufs
  refine (SparseCore.bigSep_erase' (SparseCore.Cfg.mem_ownRefs_of_owner (p := pV L) (b := (pV L).devRef cc11_scratch0) rfl)).trans ?_
  rw [SparseCore.bigSep_erase' (Finset.mem_erase.mpr ⟨fun e => absurd (Proc.devRef_injective _ e) (show (cc11_scratch1 : Ref sig .scVector) ≠ cc11_scratch0 by decide),
      SparseCore.Cfg.mem_ownRefs_of_owner (p := pV L) (b := (pV L).devRef cc11_scratch1) rfl⟩),
    SparseCore.bigSep_erase' (Finset.mem_erase.mpr ⟨fun e => absurd (Proc.devRef_injective _ e) (show (cc11_scratch2 : Ref sig .scVector) ≠ cc11_scratch1 by decide),
      Finset.mem_erase.mpr ⟨fun e => absurd (Proc.devRef_injective _ e) (show (cc11_scratch2 : Ref sig .scVector) ≠ cc11_scratch0 by decide),
      SparseCore.Cfg.mem_ownRefs_of_owner (p := pV L) (b := (pV L).devRef cc11_scratch2) rfl⟩⟩),
    SparseCore.bigSep_erase' (Finset.mem_erase.mpr ⟨fun e => absurd (Proc.devRef_injective _ e) (show (cc11_scratch3 : Ref sig .scVector) ≠ cc11_scratch2 by decide),
      Finset.mem_erase.mpr ⟨fun e => absurd (Proc.devRef_injective _ e) (show (cc11_scratch3 : Ref sig .scVector) ≠ cc11_scratch1 by decide),
      Finset.mem_erase.mpr ⟨fun e => absurd (Proc.devRef_injective _ e) (show (cc11_scratch3 : Ref sig .scVector) ≠ cc11_scratch0 by decide),
      SparseCore.Cfg.mem_ownRefs_of_owner (p := pV L) (b := (pV L).devRef cc11_scratch3) rfl⟩⟩⟩)]

/-- The rest of the subcore's scoped storage, which the task does not touch. -/
def restR : sProp 𝕄 :=
  iprop((bigSep (((((ownRefs (τ := τ) (pV L)).erase ((pV L).devRef cc11_scratch0)).erase ((pV L).devRef cc11_scratch1)).erase
              ((pV L).devRef cc11_scratch2)).erase ((pV L).devRef cc11_scratch3))
              fun b => iprop(∃ f, ((d, b) : Loc nD τ sig) ↦{fullShare} f))
      ∗ bigSep (((((ownCells (thr d L)).erase (c8 d L)).erase (c9 d L)).erase (c10 d L)).erase (c11 d L)) fun g => semVal g 0)

theorem body_pre (hO : ∀ g, O g none = 0) :
    iprop(levAts (K (F := F)).L (K (F := F)).lev ∗ emp ∗ goRes d L fx ∗ ownBufs (thr d L) ∗ ownSems0 (thr d L) ∗ owes (thr d L) O W)
      ⊢ runPre d L O W fx (restR (F := F) d L) := by
  rw [ownSems0_V, ownBufs_V]
  unfold goRes runPre restR
  iintro ⟨#Hlv, -, ⟨HX, HOut⟩, ⟨H4, H5, H6, H7, Hbufs⟩, ⟨Hs8, Hs9, Hs10, Hs11, Hsems⟩, HO⟩
  ihave Hmw := ((K (F := F)).mayWaits_none (thr := thr d L) hO) $$ Hlv
  isplitr; · iexact Hmw
  isplitl [HO]; · iexact HO
  isplitl [HX]; · iexact HX
  isplitl [HOut]; · iexact HOut
  isplitl [H4]; · iexact H4
  isplitl [H5]; · iexact H5
  isplitl [H6]; · iexact H6
  isplitl [H7]; · iexact H7
  isplitl [Hs8]; · iexact Hs8
  isplitl [Hs9]; · iexact Hs9
  isplitl [Hs10]; · iexact Hs10
  isplitl [Hs11]; · iexact Hs11
  isplitl [Hbufs]; · iexact Hbufs
  iexact Hsems

theorem body_post :
    runPost d L O W fx (restR (F := F) d L)
      ⊢ iprop(tdRes d L fx ∗ ownBufs (thr d L) ∗ ownSems0 (thr d L) ∗ ∃ W', ⌜∀ p ∈ W', p ∈ W ∨ p.2 = none⌝ ∗ owes (thr d L) O W') := by
  rw [ownSems0_V, ownBufs_V]
  unfold tdRes runPost restR
  iintro ⟨HX, HOut, H4, H5, H6, H7, Hs8, Hs9, Hs10, Hs11, HW, Hbufs, Hsems⟩
  isplitl [HX HOut]
  · isplitl [HX]; · iexact HX
    iexact HOut
  isplitl [H4 H5 H6 H7 Hbufs]
  · isplitl [H4]; · iexact H4
    isplitl [H5]; · iexact H5
    isplitl [H6]; · iexact H6
    isplitl [H7]; · iexact H7
    iexact Hbufs
  isplitl [Hs8 Hs9 Hs10 Hs11 Hsems]
  · isplitl [Hs8]; · iexact Hs8
    isplitl [Hs9]; · iexact Hs9
    isplitl [Hs10]; · iexact Hs10
    isplitl [Hs11]; · iexact Hs11
    iexact Hsems
  iexact HW

/-- The task in the launch theorem's shape: from what the call hands the tile and the subcore's scoped storage to
    what the tile hands back and the storage again. -/
theorem tile_body (hF : (K (F := F)).Facts) (hO : ∀ g, O g none = 0) :
    iprop(levAts (K (F := F)).L (K (F := F)).lev ∗ emp ∗ goRes d L fx ∗ scopedBufs (thr d L) ∗ scopedSems0 (thr d L) ∗ owes (thr d L) O W)
      ⊢ wp frame (wpE (defs₀ (F := F)) 𝒱₀ (thr d L) none) Set.univ
          (cc11_sc_group L xtW (Memref.isWhole_whole _) oW (Memref.isWhole_whole _) a4 (Memref.isWhole_whole _) a5 (Memref.isWhole_whole _)
            a6 (Memref.isWhole_whole _) a7 (Memref.isWhole_whole _) cc11_scratch4 cc11_scratch5 cc11_scratch6 cc11_scratch7)
          fun _ => iprop(tdRes d L fx ∗ scopedBufs (thr d L) ∗ scopedSems0 (thr d L)
            ∗ ∃ W', ⌜∀ p ∈ W', p ∈ W ∨ p.2 = none⌝ ∗ owes (thr d L) O W') := by
  rw [(K (F := F)).scopedBufs_V hF d (cV L) (jV L), SparseCore.Cfg.scopedSems0_V (Val := Elt F) d (cV L) (jV L)]
  exact (body_pre d L O W fx hO).trans ((tile_run d L O W fx (restR (F := F) d L)).trans (wp_mono frame _ _ fun _ => body_post d L O W fx))

end Tile

end Cert.Proof.TileK11

end
-- ==== Proof.TileBVal11.lean ====
/-
  What the staging buffers of one vector subcore hold while it copies a piece of 3200 consecutive elements of row 11 of
  the transposed argument into the flat result, read index by index. No program and no ownership here: only the contents.

  A transfer lands the piece in row 0 of an 8 × 3200 staging array (`InRow`: position (0, t) of that row holds element
  (0, pos + t) of the transposed argument, `pos` the piece's first column). A loop of 200 trips copies that row, 16 lanes
  per trip, into the first 3200 elements of a flat staging array of 25600: trip `j` reads the 1 × 16 window at columns
  [16 j, 16 j + 16) of row 0 and writes it, flattened, at elements [16 j, 16 j + 16). After `j` trips the first 16 j
  elements of the flat array are the first 16 j elements of the row (`Lanes`); a trip extends the prefix by 16
  (`lanes_step`: an element below 16 j is outside the window written and keeps its value, an element of the window reads
  the lane written there, which is the row's element at the same column). A second transfer writes the first 3200
  elements of the flat array to the piece of the result at the same `pos`; so every element of that piece of the result
  holds the element of row 11 of the transposed argument at its own position (`out_written`): the composite of the three
  index maps t ↦ (0, pos + t) ↦ (0, t) ↦ t ↦ pos + t is the identity on positions of the row.
-/
import proofs.«206869_g37898791420194_cont_8to1_b_558_20_alg».proof.Proof.TileB11Defs
import proofs.«206869_g37898791420194_cont_8to1_b_558_20_alg».proof.Proof.Spec
import Idealize.ShloMosaic.Lib.WritesUnit
import Idealize.ShloMosaic.Lib.ValueLayout

noncomputable section

namespace Cert.Proof.TileBVal11

open Cert.Proof.TileB11 Cert.Kernel Cert.Kernel.Gen
open Idealize.ShloMosaic Idealize.ShloMosaic.ValueIdx

variable {F : FTy → Type} [FloatOps F]
variable (d : Dev nD) (L : grid11.Coords)
variable (fx : Buf (Elt F) ((Memref.whole main_v0_scv : Memref sig .scVector .hbm S22x1600000 .f32).view.loc (thr d L)))

abbrev rowRect : Rect S8x3200 := Rect.unit (s := S8x3200) ![0, 0] S1x3200.size inb_S8x3200_S1x3200_0_0

/-- row 0 of the staging array is piece n of the argument row -/
def InRow (a : Memref sig .scVector .vmem S8x3200 .f32) (ga : Buf (Elt F) (a.view.loc (thr d L))) (n : ℕ) : Prop :=
  ∀ y : S1x3200.Idx, a.view.read (Elt F) ga (rowRect.emb y) = (inM L n).view.read (Elt F) fx y

theorem inRow_fetch (a : Memref sig .scVector .vmem S8x3200 .f32) (gold : Buf (Elt F) (a.view.loc (thr d L)))
    (w : S1x3200.Idx → Elt F .f32) (n : ℕ) (hw : ∀ y, w y = (inM L n).view.read (Elt F) fx y) :
    InRow d L fx a (a.view.writes (Elt F) gold [⟨rowRect, w⟩]) n :=
  fun y => (View.read_writes_cons_emb a.view gold rowRect w [] y).trans (hw y)

def Lanes (a : Memref sig .scVector .vmem S8x3200 .f32) (b : Memref sig .scVector .vmem S25600 .f32)
    (ga : Buf (Elt F) (a.view.loc (thr d L))) (gb : Buf (Elt F) (b.view.loc (thr d L))) (j : ℕ) : Prop :=
  ∀ (r : ℕ) (hr : r < 3200), r < 16 * j →
    b.view.read (Elt F) gb (ix1 (⟨r, by omega⟩ : Fin 25600)) = a.view.read (Elt F) ga (ix2 (0 : Fin 8) (⟨r, hr⟩ : Fin 3200))

theorem lanes_zero (a : Memref sig .scVector .vmem S8x3200 .f32) (b : Memref sig .scVector .vmem S25600 .f32)
    (ga : Buf (Elt F) (a.view.loc (thr d L))) (gb : Buf (Elt F) (b.view.loc (thr d L))) : Lanes d L a b ga gb 0 := by
  intro r hr h; omega

/-- The 1 × 16 window at column `c` of the staging array, read at lane `t`, is element `(0, c + t)`. -/
theorem idx_window {off : Fin 2 → ℕ} {c : ℕ} (h : off = ![0, c]) (p : ∀ a', off a' + S1x16.size a' ≤ S8x3200.size a')
    (t : Fin 16) (hr : c + t.val < 3200) :
    (Rect.unit (s := S8x3200) off S1x16.size p).toLoadRect.idx (ix2 (0 : Fin 1) t) = ix2 (0 : Fin 8) (⟨c + t.val, hr⟩ : Fin 3200) := by
  subst h
  funext a'; apply Fin.ext
  rw [LoadRect.idx_apply]
  match a' with
  | ⟨0, _⟩ => show 0 + 1 * 0 = 0; omega
  | ⟨1, _⟩ => show c + 1 * t.val = c + t.val; omega

/-- One trip of a lane-copy loop, the offsets given by their closed forms. -/
theorem lanes_step_core (a : Memref sig .scVector .vmem S8x3200 .f32) (b : Memref sig .scVector .vmem S25600 .f32)
    (ga : Buf (Elt F) (a.view.loc (thr d L))) (gb : Buf (Elt F) (b.view.loc (thr d L)))
    (t : ℕ) {off3 : Fin 2 → ℕ} {off4 : Fin 1 → ℕ} (h3 : off3 = ![0, 16 * t]) (h4 : off4 = ![16 * t])
    (p3 : ∀ a', off3 a' + S1x16.size a' ≤ S8x3200.size a') (p4 : ∀ a', off4 a' + S16.size a' ≤ S25600.size a')
    (h : Lanes d L a b ga gb t) :
    Lanes d L a b ga (b.view.writes (Elt F) gb [⟨Rect.unit (s := S25600) off4 S16.size p4,
      shapeCast S16 (a.view.readAt (Elt F) (Rect.unit (s := S8x3200) off3 S1x16.size p3).toLoadRect ga) shapeCasts_S1x16_S16⟩]) (t + 1) := by
  intro r hr hlt
  by_cases hlo : r < 16 * t
  · refine (View.read_writes_cons_unit_of_not_mem b.view gb p4 _ [] _ h4 (0 : Fin 1) (Or.inl ?_)).trans (h r hr hlo)
    show r < 16 * t
    exact hlo
  · have hx : r - 16 * t < 16 := by omega
    refine (View.read_writes_cons_unit_of_mem b.view gb p4 _ [] _ (ix1 (⟨r - 16 * t, hx⟩ : Fin 16)) h4 ?_).trans ?_
    · intro a'
      match a' with
      | ⟨0, _⟩ => show r = 16 * t + (r - 16 * t); omega
    · rw [shapeCast_1a_a_apply, View.readAt_apply, idx_window h3 p3 ⟨r - 16 * t, hx⟩ (by show 16 * t + (r - 16 * t) < 3200; omega)]
      congr 2
      apply Fin.ext
      show 16 * t + (r - 16 * t) = r
      omega

theorem lanes_step (a : Memref sig .scVector .vmem S8x3200 .f32) (b : Memref sig .scVector .vmem S25600 .f32)
    (ga : Buf (Elt F) (a.view.loc (thr d L))) (gb : Buf (Elt F) (b.view.loc (thr d L)))
    (j : Fin k11_t2_loop.trips) (p3 : ∀ a', (k11_off3 j) a' + S1x16.size a' ≤ S8x3200.size a')
    (p4 : ∀ a', (k11_off4 j) a' + S16.size a' ≤ S25600.size a') (h : Lanes d L a b ga gb j.val) :
    Lanes d L a b ga (b.view.writes (Elt F) gb [⟨Rect.unit (s := S25600) (k11_off4 j) S16.size p4,
      k11_pay1 (a.view.readAt (Elt F) (Rect.unit (s := S8x3200) (k11_off3 j) S1x16.size p3).toLoadRect ga)⟩]) (j.val + 1) :=
  lanes_step_core d L a b ga gb j.val (k11_off3_eq j) (k11_off4_eq j) p3 p4 h

theorem lanes_step' (a : Memref sig .scVector .vmem S8x3200 .f32) (b : Memref sig .scVector .vmem S25600 .f32)
    (ga : Buf (Elt F) (a.view.loc (thr d L))) (gb : Buf (Elt F) (b.view.loc (thr d L)))
    (j : Fin k11_t3_loop.trips) (p3 : ∀ a', (k11_off8 j) a' + S1x16.size a' ≤ S8x3200.size a')
    (p4 : ∀ a', (k11_off9 j) a' + S16.size a' ≤ S25600.size a') (h : Lanes d L a b ga gb j.val) :
    Lanes d L a b ga (b.view.writes (Elt F) gb [⟨Rect.unit (s := S25600) (k11_off9 j) S16.size p4,
      k11_pay2 (a.view.readAt (Elt F) (Rect.unit (s := S8x3200) (k11_off8 j) S1x16.size p3).toLoadRect ga)⟩]) (j.val + 1) :=
  lanes_step_core d L a b ga gb j.val (k11_off8_eq j) (k11_off9_eq j) p3 p4 h

/-- Position `y` of the write-out window of the flat staging array is its element `y 0`. -/
theorem stg_emb (y : S3200.Idx) (hy : (y 0).val < 25600) :
    (Rect.unit (s := S25600) ![0] S3200.size inb_S25600_S3200_0).emb y = ix1 (⟨(y 0).val, hy⟩ : Fin 25600) := by
  funext a'; apply Fin.ext
  match a' with
  | ⟨0, _⟩ => show 0 + 1 * (y 0).val = (y 0).val; omega

/-- Position `(0, t)` of row 0 of the staging array is its element `(0, t)`. -/
theorem row_emb (t : Fin 3200) : rowRect.emb (ix2 (0 : Fin 1) t) = ix2 (0 : Fin 8) t := by
  funext a'; apply Fin.ext
  match a' with
  | ⟨0, _⟩ => show 0 + 1 * 0 = 0; omega
  | ⟨1, _⟩ => show 0 + 1 * t.val = t.val; omega

/-- Position `(0, t)` of piece `n` of the argument row is element `(0, pos + t)` of the transposed argument;
    position `y` of piece `n` of the result is element `pos + y 0` of the result. -/
theorem in_emb (n : ℕ) (t : Fin 3200) (h : pos L n + t.val < 1600000) :
    (inM L n).view.emb (ix2 (0 : Fin 1) t) = ix2 (11 : Fin 22) (⟨pos L n + t.val, h⟩ : Fin 1600000) := by
  funext a'; apply Fin.ext
  match a' with
  | ⟨0, _⟩ => show 11 + 1 * 0 = 11; omega
  | ⟨1, _⟩ => show pos L n + 1 * t.val = pos L n + t.val; omega

theorem out_emb (n : ℕ) (y : S3200.Idx) (h : pos L n + (y 0).val < 1600000) :
    (outM L n).view.emb y = ix1 (⟨pos L n + (y 0).val, h⟩ : Fin 1600000) := by
  funext a'; apply Fin.ext
  match a' with
  | ⟨0, _⟩ => show pos L n + 1 * (y 0).val = pos L n + (y 0).val; omega

/-- Both lane-copy loops run 200 trips: 200 · 16 = 3200, the whole row. -/
theorem trips2 : k11_t2_loop.trips = 200 := by decide
theorem trips3 : k11_t3_loop.trips = 200 := by decide

/-- After all its trips a lane-copy loop has copied the whole row. -/
theorem lanes_all (a : Memref sig .scVector .vmem S8x3200 .f32) (b : Memref sig .scVector .vmem S25600 .f32)
    (ga : Buf (Elt F) (a.view.loc (thr d L))) (gb : Buf (Elt F) (b.view.loc (thr d L)))
    (h : Lanes d L a b ga gb k11_t2_loop.trips) : Lanes d L a b ga gb 200 := trips2 ▸ h
theorem lanes_all' (a : Memref sig .scVector .vmem S8x3200 .f32) (b : Memref sig .scVector .vmem S25600 .f32)
    (ga : Buf (Elt F) (a.view.loc (thr d L))) (gb : Buf (Elt F) (b.view.loc (thr d L)))
    (h : Lanes d L a b ga gb k11_t3_loop.trips) : Lanes d L a b ga gb 200 := trips3 ▸ h

/-- The write-out of a piece: the first 3200 elements of the flat staging array, which the 200 lane copies filled from
    row 0 of the staging array, which the fetch filled from piece `n` of row 11 of the transposed argument, land at
    piece `n` of the result, at the same positions of the row. -/
theorem out_written (a : Memref sig .scVector .vmem S8x3200 .f32) (b : Memref sig .scVector .vmem S25600 .f32) (n : ℕ)
    (ga : Buf (Elt F) (a.view.loc (thr d L))) (gb : Buf (Elt F) (b.view.loc (thr d L)))
    (f0 : Buf (Elt F) ((outM L n).view.loc (thr d L))) (w : S3200.Idx → Elt F .f32)
    (hw : ∀ y, w y = (stg b).view.read (Elt F) gb y) (hl : Lanes d L a b ga gb 200) (hr : InRow d L fx a ga n) (hv : valid L n) :
    ∀ i ∈ (outM L n).view.set, ((outM L n).view.writes (Elt F) f0 [⟨Rect.whole _, w⟩]) i = Cert.Spec.row 11 fx i := by
  intro i hi
  obtain ⟨y, -, rfl⟩ := Finset.mem_map.mp hi
  have hy : (y 0).val < 3200 := (y 0).isLt
  have hp : pos L n + (y 0).val < 1600000 := by unfold pos; omega
  have e1 : (outM L n).view.writes (Elt F) f0 [⟨Rect.whole _, w⟩] ((outM L n).view.emb y) = w y := by
    have h := View.read_writes_cons_emb (outM L n).view f0 (Rect.whole _) w [] y
    rw [Rect.emb_whole_apply] at h
    exact (cast_eq _ _).symm.trans ((View.read_apply _ _).symm.trans h)
  have e2 : (stg b).view.read (Elt F) gb y = b.view.read (Elt F) gb (ix1 (⟨(y 0).val, by omega⟩ : Fin 25600)) :=
    congrArg (b.view.read (Elt F) gb) (stg_emb y (by omega))
  have e3 : a.view.read (Elt F) ga (ix2 (0 : Fin 8) (⟨(y 0).val, hy⟩ : Fin 3200))
      = (inM L n).view.read (Elt F) fx (ix2 (0 : Fin 1) (⟨(y 0).val, hy⟩ : Fin 3200)) :=
    (congrArg (a.view.read (Elt F) ga) (row_emb ⟨(y 0).val, hy⟩).symm).trans (hr _)
  have e4 : (inM L n).view.read (Elt F) fx (ix2 (0 : Fin 1) (⟨(y 0).val, hy⟩ : Fin 3200))
      = fx (ix2 (11 : Fin 22) (⟨pos L n + (y 0).val, hp⟩ : Fin 1600000)) :=
    ((View.read_apply _ _).trans (cast_eq _ _)).trans (congrArg fx (in_emb L n ⟨(y 0).val, hy⟩ hp))
  have e5 : Cert.Spec.row 11 fx ((outM L n).view.emb y) = fx (ix2 (11 : Fin 22) (⟨pos L n + (y 0).val, hp⟩ : Fin 1600000)) :=
    (congrArg (Cert.Spec.row 11 fx) (out_emb L n y hp)).trans (Cert.Spec.row_apply 11 fx _)
  exact e1.trans ((hw y).trans (e2.trans ((hl _ hy (by omega)).trans (e3.trans (e4.trans e5.symm)))))

end Cert.Proof.TileBVal11

end
-- ==== Proof.TileB11.lean ====
/-
  One vector subcore's task of copy kernel 11 (counting from 0), run symbolically: the two fetch slots and two write-out slots
  between trips of the main loop (what each transfer in flight will hand back, and what the staging buffers hold), the
  invariant of the main loop and of the two lane-copy loops, and the task's run — from the tile's pieces of row 11 of
  the transposed argument and of the result to the same pieces with the result holding the row's elements.
-/
import proofs.«206869_g37898791420194_cont_8to1_b_558_20_alg».proof.Proof.TileB11Defs
import proofs.«206869_g37898791420194_cont_8to1_b_558_20_alg».proof.Proof.TileBVal11
noncomputable section

namespace Cert.Proof.TileB11

open Cert.Kernel Cert.Kernel.Gen Cert.Proof.TileBVal11
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 22) (Elt F) ℕ UU ℕ
local notation "xtW" => (Memref.whole Cert.Kernel.main_v0_scv : Memref Cert.Kernel.sig Kind.scVector Space.hbm Cert.Kernel.S22x1600000 EltTy.f32)
local notation "oW" => (Memref.whole Cert.Kernel.main_v12_scv : Memref Cert.Kernel.sig Kind.scVector Space.hbm Cert.Kernel.S1600000 EltTy.f32)
local notation "a4" => (Memref.whole Cert.Kernel.cc11_scratch0 : Memref Cert.Kernel.sig Kind.scVector Space.vmem Cert.Kernel.S8x3200 EltTy.f32)
local notation "a5" => (Memref.whole Cert.Kernel.cc11_scratch1 : Memref Cert.Kernel.sig Kind.scVector Space.vmem Cert.Kernel.S8x3200 EltTy.f32)
local notation "a6" => (Memref.whole Cert.Kernel.cc11_scratch2 : Memref Cert.Kernel.sig Kind.scVector Space.vmem Cert.Kernel.S25600 EltTy.f32)
local notation "a7" => (Memref.whole Cert.Kernel.cc11_scratch3 : Memref Cert.Kernel.sig Kind.scVector Space.vmem Cert.Kernel.S25600 EltTy.f32)

variable [FloatOps F]

section Tile

variable (d : Dev nD) (L : grid11.Coords)
variable (O : CellTallies nD τ sig (HIx 22)) (W : Waits sig (HIx 22))
variable (fx : Buf (Elt F) ((xtW).view.loc (thr d L)))

/-- Piece `n` of the result at its final contents. -/
abbrev oqPiece (n : ℕ) : sProp 𝕄 := (outM L n).view.loc (thr d L) ↦[(outM L n).view.set]{fullShare} (Cert.Spec.row 11 fx)
theorem oQ_pos {n : ℕ} (v : valid L n) : oQ d L fx n = oqPiece d L fx n := if_pos v
theorem oQ_neg {n : ℕ} (v : ¬ valid L n) : oQ d L fx n = iprop(emp) := if_neg v

/-- A fetch slot, remembering that the staging row it will hand back holds the piece. -/
def inSlotV (a : Memref sig .scVector .vmem S8x3200 .f32) (sm : DmaSem sig) (n : ℕ) : sProp 𝕄 :=
  if valid L n then
    iprop(∃ g, ⌜InRow d L fx a g n⌝ ∗ Transfers.Flight countersEmb (thr d L) (SemLoc.dma sm) (default : HIx 22) NN
      iprop((a.view.loc (thr d L) ↦{fullShare} g) ∗ xtPiece d L fx n))
  else iprop((∃ g, a.view.loc (thr d L) ↦{fullShare} g) ∗ semVal (thr d L, SemLoc.dma sm) 0)

/-- A write-out slot: the piece in flight will come back holding the row's elements. -/
def outSlotV (a : Memref sig .scVector .vmem S25600 .f32) (sm : DmaSem sig) (m : ℕ) : sProp 𝕄 :=
  if 2 ≤ m ∧ valid L (m - 2) then
    iprop(∃ g, Transfers.Flight countersEmb (thr d L) (SemLoc.dma sm) (default : HIx 22) NN
        iprop(oqPiece d L fx (m - 2) ∗ ((stg a).view.loc (thr d L) ↦[(stg a).view.set]{fullShare} g))
      ∗ (a.view.loc (thr d L) ↦[Finset.univ \ (stg a).view.set]{fullShare} g))
  else iprop((∃ g, a.view.loc (thr d L) ↦{fullShare} g) ∗ semVal (thr d L, SemLoc.dma sm) 0)

theorem inSlotV_pos {a : Memref sig .scVector .vmem S8x3200 .f32} {sm : DmaSem sig} {n : ℕ} (v : valid L n) :
    inSlotV d L fx a sm n = iprop(∃ g, ⌜InRow d L fx a g n⌝ ∗ Transfers.Flight countersEmb (thr d L) (SemLoc.dma sm) (default : HIx 22) NN
      iprop((a.view.loc (thr d L) ↦{fullShare} g) ∗ xtPiece d L fx n)) := by unfold inSlotV; rw [if_pos v]
theorem inSlotV_neg {a : Memref sig .scVector .vmem S8x3200 .f32} {sm : DmaSem sig} {n : ℕ} (v : ¬ valid L n) :
    inSlotV d L fx a sm n = iprop((∃ g, a.view.loc (thr d L) ↦{fullShare} g) ∗ semVal (thr d L, SemLoc.dma sm) 0) := by
  unfold inSlotV; rw [if_neg v]
theorem outSlotV_pos {a : Memref sig .scVector .vmem S25600 .f32} {sm : DmaSem sig} {m : ℕ} (h : 2 ≤ m ∧ valid L (m - 2)) :
    outSlotV d L fx a sm m = iprop(∃ g, Transfers.Flight countersEmb (thr d L) (SemLoc.dma sm) (default : HIx 22) NN
        iprop(oqPiece d L fx (m - 2) ∗ ((stg a).view.loc (thr d L) ↦[(stg a).view.set]{fullShare} g))
      ∗ (a.view.loc (thr d L) ↦[Finset.univ \ (stg a).view.set]{fullShare} g)) := by unfold outSlotV; rw [if_pos h]
theorem outSlotV_neg {a : Memref sig .scVector .vmem S25600 .f32} {sm : DmaSem sig} {m : ℕ} (h : ¬ (2 ≤ m ∧ valid L (m - 2))) :
    outSlotV d L fx a sm m = iprop((∃ g, a.view.loc (thr d L) ↦{fullShare} g) ∗ semVal (thr d L, SemLoc.dma sm) 0) := by
  unfold outSlotV; rw [if_neg h]

/-- A fetch just issued: the staging row will hold what the transfer reads, which is the piece. -/
theorem fl_inV {off : Fin 2 → ℕ} {n : ℕ} (h : off = ![11, pos L n]) (p : ∀ a, off a + S1x3200.size a ≤ S22x1600000.size a) (v : valid L n)
    (a : Memref sig .scVector .vmem S8x3200 .f32) (sm : DmaSem sig) :
    (iprop(∃ (gold : Buf (Elt F) (a.view.loc (thr d L))) (w : S1x3200.Idx → Elt F .f32),
        ⌜∀ y, w y = ((xtW).slice (Rect.unit (s := S22x1600000) off S1x3200.size p) (fun _ => rfl)).view.read (Elt F) fx y⌝
        ∗ Transfers.Flight countersEmb (thr d L) (SemLoc.dma sm) (default : HIx 22) NN
          iprop((a.view.loc (thr d L) ↦{fullShare} a.view.writes (Elt F) gold [⟨rowRect, w⟩])
            ∗ (((xtW).slice (Rect.unit (s := S22x1600000) off S1x3200.size p) (fun _ => rfl)).view.loc (thr d L)
                ↦[((xtW).slice (Rect.unit (s := S22x1600000) off S1x3200.size p) (fun _ => rfl)).view.set]{fullShare} fx))) : sProp 𝕄)
      ⊢ inSlotV d L fx a sm n := by
  subst h
  rw [inSlotV_pos d L fx v]
  iintro ⟨%gold, %w, %hw, H⟩
  iexists _
  isplitr
  · ipureintro; exact inRow_fetch d L fx a gold w n hw
  · iexact H

set_option maxHeartbeats 4000000 in
/-- A write-out just issued from a flat staging buffer whose first 3200 elements are the staging row, itself piece
    `n` of the argument row: the piece of the result will hold the row's elements. -/
theorem fl_outV {off : Fin 1 → ℕ} {n : ℕ} (h : off = ![pos L n]) (p : ∀ a, off a + S3200.size a ≤ S1600000.size a) (v : valid L n)
    (ar : Memref sig .scVector .vmem S8x3200 .f32) (a : Memref sig .scVector .vmem S25600 .f32) (sm : DmaSem sig)
    (f0 : Buf (Elt F) ((oW).view.loc (thr d L))) (ga : Buf (Elt F) (ar.view.loc (thr d L))) (gb : Buf (Elt F) (a.view.loc (thr d L)))
    (hl : Lanes d L ar a ga gb 200) (hr : InRow d L fx ar ga n) :
    (iprop(∃ (w : S3200.Idx → Elt F .f32),
        ⌜∀ y, w y = (stg a).view.read (Elt F) gb y⌝
        ∗ Transfers.Flight countersEmb (thr d L) (SemLoc.dma sm) (default : HIx 22) NN
          iprop((((oW).slice (Rect.unit (s := S1600000) off S3200.size p) (fun _ => rfl)).view.loc (thr d L)
                ↦[((oW).slice (Rect.unit (s := S1600000) off S3200.size p) (fun _ => rfl)).view.set]{fullShare}
                  (((oW).slice (Rect.unit (s := S1600000) off S3200.size p) (fun _ => rfl)).view.writes (Elt F) f0 [⟨Rect.whole _, w⟩]))
            ∗ ((stg a).view.loc (thr d L) ↦[(stg a).view.set]{fullShare} gb))
        ∗ (a.view.loc (thr d L) ↦[Finset.univ \ (stg a).view.set]{fullShare} gb)) : sProp 𝕄)
      ⊢ outSlotV d L fx a sm (n + 2) := by
  subst h
  rw [outSlotV_pos d L fx (m := n + 2) ⟨by omega, by simpa using v⟩]
  iintro ⟨%w, %hw, H, R⟩
  have hD : (iprop(((outM L n).view.loc (thr d L) ↦[(outM L n).view.set]{fullShare} ((outM L n).view.writes (Elt F) f0 [⟨Rect.whole _, w⟩]))
          ∗ ((stg a).view.loc (thr d L) ↦[(stg a).view.set]{fullShare} gb)) : sProp 𝕄)
      ⊢ iprop(oqPiece d L fx (n + 2 - 2) ∗ ((stg a).view.loc (thr d L) ↦[(stg a).view.set]{fullShare} gb)) := by
    rw [Nat.add_sub_cancel]
    have e : (((outM L n).view.loc (thr d L) ↦[(outM L n).view.set]{fullShare} ((outM L n).view.writes (Elt F) f0 [⟨Rect.whole _, w⟩])) : sProp 𝕄)
        = oqPiece d L fx n := pointsTo_congr (out_written d L fx ar a n ga gb f0 w hw hl hr v)
    iintro ⟨H1, H2⟩
    isplitl [H1]
    · iapply (Entails.of_eq e); iexact H1
    · iexact H2
  iexists gb
  isplitl [H]
  · iapply (Transfers.Flight_mono countersEmb (thr d L) hD); iexact H
  · iexact R

/-- The result pieces outside the slots before trip `t`: those already written hold the row, the others some contents. -/
def oMix (t n : ℕ) : sProp 𝕄 := if n + 2 < 2 * t then oQ d L fx n else oP (F := F) d L n
theorem oMix_lt {t n : ℕ} (h : n + 2 < 2 * t) : oMix d L fx t n = oQ d L fx n := if_pos h
theorem oMix_ge {t n : ℕ} (h : ¬ n + 2 < 2 * t) : oMix d L fx t n = oP (F := F) d L n := if_neg h
theorem oMix_core (k : ℕ) : bigSep (oCore k) (oMix d L fx k) = bigSep (oCore k) (oMix d L fx (k + 1)) :=
  bigSep_congr fun n hn => by
    have hn' : n + 2 ≠ 2 * k ∧ n + 2 ≠ 2 * k + 1 ∧ n ≠ 2 * k ∧ n ≠ 2 * k + 1 := by
      simp only [oCore, Finset.mem_filter, Finset.mem_range] at hn; exact hn.2
    by_cases h : n + 2 < 2 * k
    · rw [oMix_lt d L fx h, oMix_lt d L fx (by omega)]
    · rw [oMix_ge d L fx h, oMix_ge d L fx (by omega)]
theorem oMix_zero : bigSep (oSet 0) (oMix d L fx 0) = bigSep (Finset.range 18) (oP (F := F) d L) := by
  rw [oSet_zero]; exact bigSep_congr fun n _ => oMix_ge d L fx (by omega)
theorem oMix_end : bigSep (oSet 8) (oMix d L fx 8) = bigSep (oSet 8) (oQ d L fx) :=
  bigSep_congr fun n hn => by
    have hn' : n < 18 ∧ n + 2 ≠ 16 ∧ n + 2 ≠ 17 := by simpa only [oSet, Finset.mem_filter, Finset.mem_range] using hn
    by_cases h : n + 2 < 2 * 8
    · exact oMix_lt d L fx h
    · rw [oMix_ge d L fx h, oP_neg (F := F) d L (by unfold valid; omega), oQ_neg d L fx (by unfold valid; omega)]

/-- The lane-copy loops: before trip `j` the first 16·j elements of the flat staging buffer are the staging row's. -/
def laneV0 (g4 : Buf (Elt F) ((a4).view.loc (thr d L))) (j : ℕ) (_ : PUnit) : sProp 𝕄 :=
  iprop(((a4).view.loc (thr d L) ↦{fullShare} g4) ∗ (∃ g, ((a6).view.loc (thr d L) ↦{fullShare} g) ∗ ⌜Lanes d L a4 a6 g4 g j⌝))
def laneV1 (g5 : Buf (Elt F) ((a5).view.loc (thr d L))) (j : ℕ) (_ : PUnit) : sProp 𝕄 :=
  iprop(((a5).view.loc (thr d L) ↦{fullShare} g5) ∗ (∃ g, ((a7).view.loc (thr d L) ↦{fullShare} g) ∗ ⌜Lanes d L a5 a7 g5 g j⌝))

def invV (t : ℕ) (_ : PUnit) : sProp 𝕄 :=
  iprop(Transfers.MayWaits (thr d L) (none : HIx 22) O
    ∗ (∃ W', ⌜∀ p ∈ W', p ∈ W ∨ p.2 = none⌝ ∗ owes (thr d L) O W')
    ∗ bigSep (xSet t) (xP d L fx) ∗ bigSep (oSet t) (oMix d L fx t)
    ∗ inSlotV d L fx a4 cc11_scratch4.sem (2 * t) ∗ outSlotV d L fx a6 cc11_scratch6.sem (2 * t)
    ∗ inSlotV d L fx a5 cc11_scratch5.sem (2 * t + 1) ∗ outSlotV d L fx a7 cc11_scratch7.sem (2 * t + 1))

/-- After the last trip nothing of the argument row is in a slot: the tile holds all its pieces. -/
theorem xRange_end : bigSep (xSet 8) (xP d L fx) ⊢ bigSep (Finset.range 18) (xP d L fx) := by
  rw [two_out (s := Finset.range 18) (a := 16) (b := 17) (by decide) (by decide) (by decide),
    show ((Finset.range 18).erase 16).erase 17 = xSet 8 by decide]
  iintro H
  isplitr; · iapply (Entails.of_eq (xP_neg d L fx (n := 16) (by unfold valid; omega)).symm); iempintro
  isplitr; · iapply (Entails.of_eq (xP_neg d L fx (n := 17) (by unfold valid; omega)).symm); iempintro
  iexact H
omit [FloatOps F] in
theorem oRange_end (Φ : ℕ → sProp 𝕄) : bigSep (Finset.range 18) Φ = iprop(Φ 14 ∗ Φ 15 ∗ bigSep (oSet 8) Φ) := by
  rw [two_out (s := Finset.range 18) (a := 14) (b := 15) (by decide) (by decide) (by decide),
    show ((Finset.range 18).erase 14).erase 15 = oSet 8 by decide]

/-- What the run starts from and ends with, beside an untouched rest `R`. -/
def runPre (R : sProp 𝕄) : sProp 𝕄 :=
    iprop(Transfers.MayWaits (thr d L) (none : HIx 22) O ∗ owes (thr d L) O W
        ∗ bigSep (Finset.range 18) (xP d L fx) ∗ bigSep (Finset.range 18) (oP (F := F) d L)
        ∗ (∃ g, (a4).view.loc (thr d L) ↦{fullShare} g) ∗ (∃ g, (a5).view.loc (thr d L) ↦{fullShare} g)
        ∗ (∃ g, (a6).view.loc (thr d L) ↦{fullShare} g) ∗ (∃ g, (a7).view.loc (thr d L) ↦{fullShare} g)
        ∗ semVal (thr d L, SemLoc.dma cc11_scratch4.sem) 0 ∗ semVal (thr d L, SemLoc.dma cc11_scratch5.sem) 0
        ∗ semVal (thr d L, SemLoc.dma cc11_scratch6.sem) 0 ∗ semVal (thr d L, SemLoc.dma cc11_scratch7.sem) 0 ∗ R)
def runPost (R : sProp 𝕄) : sProp 𝕄 :=
    iprop(bigSep (Finset.range 18) (xP d L fx) ∗ bigSep (Finset.range 18) (oQ d L fx)
            ∗ (∃ g, (a4).view.loc (thr d L) ↦{fullShare} g) ∗ (∃ g, (a5).view.loc (thr d L) ↦{fullShare} g)
            ∗ (∃ g, (a6).view.loc (thr d L) ↦{fullShare} g) ∗ (∃ g, (a7).view.loc (thr d L) ↦{fullShare} g)
            ∗ semVal (thr d L, SemLoc.dma cc11_scratch4.sem) 0 ∗ semVal (thr d L, SemLoc.dma cc11_scratch5.sem) 0
            ∗ semVal (thr d L, SemLoc.dma cc11_scratch6.sem) 0 ∗ semVal (thr d L, SemLoc.dma cc11_scratch7.sem) 0
            ∗ (∃ W', ⌜∀ p ∈ W', p ∈ W ∨ p.2 = none⌝ ∗ owes (thr d L) O W') ∗ R)

set_option maxHeartbeats 16000000 in
/-- The task's run: from its pieces of the argument row and of the result, the four staging buffers and the four
    semaphores at zero, to the same with every piece of the result holding the row's elements. -/
theorem tile_run (R : sProp 𝕄) :
    runPre d L O W fx R
      ⊢ wp frame (wpE (defs₀ (F := F)) 𝒱₀ (thr d L) none) Set.univ
          (cc11_sc_group L xtW (Memref.isWhole_whole _) oW (Memref.isWhole_whole _) a4 (Memref.isWhole_whole _) a5 (Memref.isWhole_whole _)
            a6 (Memref.isWhole_whole _) a7 (Memref.isWhole_whole _) cc11_scratch4 cc11_scratch5 cc11_scratch6 cc11_scratch7)
          fun _ => runPost d L O W fx R := by
  unfold runPre runPost
  have v0 : valid L 0 := Or.inl (by omega)
  have v1 : valid L 1 := Or.inl (by omega)
  have k11_h7 : k11_cond7 L = 1#1 := cond7_iff L
  iintro ⟨#Hmw, HO, HX, HOut, ⟨%g4, H4⟩, ⟨%g5, H5⟩, ⟨%g6, H6⟩, ⟨%g7, H7⟩, Hs8, Hs9, Hs10, Hs11, HR⟩
  ihave HX := (Entails.of_eq (xRange_split d L fx v0 v1)) $$ HX
  icases HX with ⟨X0, X1, HX⟩
  ihave X0 := (Entails.of_eq (in_congr d L (off_in0 L v0).symm (in_inb L _) (k11_off1_inb L 0) fx)) $$ X0
  ihave X1 := (Entails.of_eq (in_congr d L (off_in1 L v1).symm (in_inb L _) (k11_off1_inb L 1) fx)) $$ X1
  sl_unfold [cc11_sc_group]
  sl_exec
  ihave S8 := (fl_inV d L fx (off_in0 L v0) (k11_off1_inb L 0) v0 a4 cc11_scratch4.sem) $$ [Hs8]
  · iexists _, _
    isplitr
    rotate_left
    · iexact Hs8
    ipureintro; intro y; rfl
  ihave S9 := (fl_inV d L fx (off_in1 L v1) (k11_off1_inb L 1) v1 a5 cc11_scratch5.sem) $$ [Hs9]
  · iexists _, _
    isplitr
    rotate_left
    · iexact Hs9
    ipureintro; intro y; rfl
  sl_for (invV d L O W fx) $$ [HO HX HOut S8 S9 H6 H7 Hs10 Hs11]
  case region =>
    intro (k : Fin k11_t1_loop.trips) acc
    have hk : k.val < 8 := Nat.lt_of_lt_of_eq k.isLt trips1
    unfold invV
    iintro ⟨#Hmw, ⟨%W', %hW', HO⟩, HX, HOut, S8, S10, S9, S11⟩
    by_cases hk1 : 1 ≤ k.val
    · by_cases v3 : valid L (2 * k.val + 3)
      · -- the generic trip: both drains, both pieces worked, both next fetches issued
        have hk6 : k.val ≤ 6 := by unfold valid at v3; omega
        have k11_h1 : k11_cond1 k = 1#1 := (cond1_iff k).mpr (by omega)
        have k11_h2 : k11_cond2 L k = 1#1 := cond2_iff L k
        have k11_h3 : k11_cond3 L k = 1#1 := (cond3_iff L k).mpr (by omega)
        have k11_h4 : k11_cond4 k = 1#1 := (cond4_iff k).mpr (by omega)
        have k11_h5 : k11_cond5 L k = 1#1 := (cond5_iff L k).mpr (by first | (unfold valid big at *; omega) | (unfold big at *; omega) | omega)
        have k11_h6 : k11_cond6 L k = 1#1 := (cond6_iff L k).mpr (by first | (unfold valid big at *; omega) | (unfold big at *; omega) | omega)
        have v0 : valid L (2 * k.val) := by unfold valid big at *; omega
        have v1 : valid L (2 * k.val + 1) := by unfold valid big at *; omega
        have v2 : valid L (2 * k.val + 2) := by unfold valid big at *; omega
        have v3' : valid L (2 * k.val + 3) := by unfold valid big at *; omega
        have hm0 : 2 ≤ 2 * k.val ∧ valid L (2 * k.val - 2) := ⟨by omega, by unfold valid big at *; omega⟩
        have hm1 : 2 ≤ 2 * k.val + 1 ∧ valid L (2 * k.val + 1 - 2) := ⟨by omega, by unfold valid big at *; omega⟩
        ihave S8 := (Entails.of_eq (inSlotV_pos d L fx v0)) $$ S8
        icases S8 with ⟨%g4, %hin4, F8⟩
        ihave S9 := (Entails.of_eq (inSlotV_pos d L fx v1)) $$ S9
        icases S9 with ⟨%g5, %hin5, F9⟩
        ihave S10 := (Entails.of_eq (outSlotV_pos d L fx hm0)) $$ S10
        icases S10 with ⟨%g6, F10, R6⟩
        ihave S11 := (Entails.of_eq (outSlotV_pos d L fx hm1)) $$ S11
        icases S11 with ⟨%g7, F11, R7⟩
        ihave HX := (Entails.of_eq (xSet_out (xP d L fx) k.val hk)) $$ HX
        icases HX with ⟨X2, X3, HX⟩
        ihave X2 := (Entails.of_eq (xP_pos d L fx v2)) $$ X2
        ihave X2 := (Entails.of_eq (in_congr d L (off_6 L k v2).symm (in_inb L _) (k11_off6_inb L k k11_h3) fx)) $$ X2
        ihave X3 := (Entails.of_eq (xP_pos d L fx v3')) $$ X3
        ihave X3 := (Entails.of_eq (in_congr d L (off_11 L k v3').symm (in_inb L _) (k11_off11_inb L k k11_h6) fx)) $$ X3
        ihave HOut := (Entails.of_eq (oSet_out (oMix d L fx k.val) k.val hk)) $$ HOut
        icases HOut with ⟨Y0, Y1, HOut⟩
        ihave Y0 := (Entails.of_eq ((oMix_ge d L fx (t := k.val) (n := 2 * k.val) (by omega)).trans (oP_pos (F := F) d L v0))) $$ Y0
        icases Y0 with ⟨%f0, Y0⟩
        ihave Y0 := (Entails.of_eq (out_congr d L (off_5 L k v0).symm (out_inb L _) (k11_off5_inb L k k11_h2) f0)) $$ Y0
        ihave Y1 := (Entails.of_eq ((oMix_ge d L fx (t := k.val) (n := 2 * k.val + 1) (by omega)).trans (oP_pos (F := F) d L v1))) $$ Y1
        icases Y1 with ⟨%f1, Y1⟩
        ihave Y1 := (Entails.of_eq (out_congr d L (off_10 L k v1).symm (out_inb L _) (k11_off10_inb L k k11_h5) f1)) $$ Y1
        sl_exec
        sl_for (laneV0 d L g4) $$ [F8_dst R6]
        case region =>
          intro (j : Fin k11_t2_loop.trips) _
          unfold laneV0
          iintro ⟨HA, %g, HB, %hl⟩
          sl_exec
          sl_step
          isplitl [HA]; · iexact HA
          iexists _; isplitl [HB]; · iexact HB
          ipureintro; exact lanes_step d L a4 a6 g4 g j _ _ hl
        · unfold laneV0
          isplitl [F8_dst]; · iexact F8_dst
          iexists _; isplitl [R6]; · iexact R6
          ipureintro; exact lanes_zero d L a4 a6 g4 _
        iintro %_ HI
        unfold laneV0
        icases HI with ⟨H4, %g6', H6, %hl6⟩
        have hl6 : Lanes d L a4 a6 g4 g6' 200 := Eq.mp (congrArg (Lanes d L a4 a6 g4 g6') trips2) hl6
        sl_exec
        sl_for (laneV1 d L g5) $$ [F9_dst R7]
        case region =>
          intro (j : Fin k11_t3_loop.trips) _
          unfold laneV1
          iintro ⟨HA, %g, HB, %hl⟩
          sl_exec
          sl_step
          isplitl [HA]; · iexact HA
          iexists _; isplitl [HB]; · iexact HB
          ipureintro; exact lanes_step' d L a5 a7 g5 g j _ _ hl
        · unfold laneV1
          isplitl [F9_dst]; · iexact F9_dst
          iexists _; isplitl [R7]; · iexact R7
          ipureintro; exact lanes_zero d L a5 a7 g5 _
        iintro %_ HI
        unfold laneV1
        icases HI with ⟨H5, %g7', H7, %hl7⟩
        have hl7 : Lanes d L a5 a7 g5 g7' 200 := Eq.mp (congrArg (Lanes d L a5 a7 g5 g7') trips3) hl7
        sl_exec
        sl_step
        isplitr; · iexact Hmw
        isplitl [HO]
        · iexists _; isplitr
          rotate_left
          · iexact HO
          ipureintro; intro p hp
          rcases Finset.mem_insert.mp hp with rfl | hp
          · exact .inr rfl
          rcases Finset.mem_insert.mp hp with rfl | hp
          · exact .inr rfl
          rcases Finset.mem_insert.mp hp with rfl | hp
          · exact .inr rfl
          rcases Finset.mem_insert.mp hp with rfl | hp
          · exact .inr rfl
          exact hW' p hp
        isplitl [HX F8_src F9_src]
        · iapply (Entails.of_eq (xSet_in (xP d L fx) k.val hk).symm)
          isplitl [F8_src]; · iapply (Entails.of_eq (xP_pos d L fx v0).symm); iexact F8_src
          isplitl [F9_src]; · iapply (Entails.of_eq (xP_pos d L fx v1).symm); iexact F9_src
          iexact HX
        isplitl [HOut F10_dst F11_dst]
        · iapply (Entails.of_eq (oSet_in (oMix d L fx (k.val + 1)) k.val hk (by omega)).symm)
          isplitl [F10_dst]; · iapply (Entails.of_eq ((oMix_lt d L fx (t := k.val + 1) (n := 2 * k.val - 2) (by omega)).trans (oQ_pos d L fx hm0.2)).symm); iexact F10_dst
          isplitl [F11_dst]
          · iapply (Entails.of_eq ((oMix_lt d L fx (t := k.val + 1) (n := 2 * k.val - 1) (by omega)).trans (oQ_pos d L fx (n := 2 * k.val - 1) (by have := hm1.2; rwa [show 2 * k.val + 1 - 2 = 2 * k.val - 1 by omega] at this))).symm)
            iapply (Entails.of_eq (congrArg (oqPiece d L fx) (show 2 * k.val + 1 - 2 = 2 * k.val - 1 by omega))); iexact F11_dst
          iapply (Entails.of_eq (oMix_core d L fx k.val)); iexact HOut
        isplitl [F8]
        · iapply (Entails.of_eq (congrArg (inSlotV d L fx a4 cc11_scratch4.sem) (show 2 * k.val + 2 = 2 * (k.val + 1) by ring)))
          iapply (fl_inV d L fx (off_6 L k v2) (k11_off6_inb L k k11_h3) v2 a4 cc11_scratch4.sem); iexists _, _
          isplitr
          rotate_left
          · iexact F8
          ipureintro; intro y; rfl
        isplitl [F10 H6]
        · iapply (Entails.of_eq (congrArg (outSlotV d L fx a6 cc11_scratch6.sem) (show 2 * k.val + 2 = 2 * (k.val + 1) by ring)))
          iapply (fl_outV d L fx (off_5 L k v0) (k11_off5_inb L k k11_h2) v0 a4 a6 cc11_scratch6.sem f0 g4 g6' hl6 hin4); iexists _
          isplitr
          rotate_left
          · isplitl [F10]; · iexact F10
            iexact H6
          ipureintro; intro y; rfl
        isplitl [F9]
        · iapply (Entails.of_eq (congrArg (inSlotV d L fx a5 cc11_scratch5.sem) (show 2 * k.val + 3 = 2 * (k.val + 1) + 1 by ring)))
          iapply (fl_inV d L fx (off_11 L k v3') (k11_off11_inb L k k11_h6) v3' a5 cc11_scratch5.sem); iexists _, _
          isplitr
          rotate_left
          · iexact F9
          ipureintro; intro y; rfl
        · iapply (Entails.of_eq (congrArg (outSlotV d L fx a7 cc11_scratch7.sem) (show 2 * k.val + 1 + 2 = 2 * (k.val + 1) + 1 by ring)))
          iapply (fl_outV d L fx (off_10 L k v1) (k11_off10_inb L k k11_h5) v1 a5 a7 cc11_scratch7.sem f1 g5 g7' hl7 hin5); iexists _
          isplitr
          rotate_left
          · isplitl [F11]; · iexact F11
            iexact H7
          ipureintro; intro y; rfl
      · by_cases h6 : k.val = 6
        · have hb : ¬ big L := fun hb => v3 (Or.inr ⟨by omega, hb⟩)
          -- trip 6 of a tile with fifteen pieces: no sixteenth piece to fetch
          have k11_h1 : k11_cond1 k = 1#1 := (cond1_iff k).mpr (by omega)
          have k11_h2 : k11_cond2 L k = 1#1 := cond2_iff L k
          have k11_h3 : k11_cond3 L k = 1#1 := (cond3_iff L k).mpr (by omega)
          have k11_h4 : k11_cond4 k = 1#1 := (cond4_iff k).mpr (by omega)
          have k11_h5 : k11_cond5 L k = 1#1 := (cond5_iff L k).mpr (by first | (unfold valid big at *; omega) | (unfold big at *; omega) | omega)
          have k11_h6 : ¬ k11_cond6 L k = 1#1 := fun h => absurd ((cond6_iff L k).mp h) (by first | (unfold valid big at *; omega) | (unfold big at *; omega) | omega)
          have v0 : valid L (2 * k.val) := by unfold valid big at *; omega
          have v1 : valid L (2 * k.val + 1) := by unfold valid big at *; omega
          have v2 : valid L (2 * k.val + 2) := by unfold valid big at *; omega
          have v3' : ¬ valid L (2 * k.val + 3) := by unfold valid big at *; omega
          have hm0 : 2 ≤ 2 * k.val ∧ valid L (2 * k.val - 2) := ⟨by omega, by unfold valid big at *; omega⟩
          have hm1 : 2 ≤ 2 * k.val + 1 ∧ valid L (2 * k.val + 1 - 2) := ⟨by omega, by unfold valid big at *; omega⟩
          ihave S8 := (Entails.of_eq (inSlotV_pos d L fx v0)) $$ S8
          icases S8 with ⟨%g4, %hin4, F8⟩
          ihave S9 := (Entails.of_eq (inSlotV_pos d L fx v1)) $$ S9
          icases S9 with ⟨%g5, %hin5, F9⟩
          ihave S10 := (Entails.of_eq (outSlotV_pos d L fx hm0)) $$ S10
          icases S10 with ⟨%g6, F10, R6⟩
          ihave S11 := (Entails.of_eq (outSlotV_pos d L fx hm1)) $$ S11
          icases S11 with ⟨%g7, F11, R7⟩
          ihave HX := (Entails.of_eq (xSet_out (xP d L fx) k.val hk)) $$ HX
          icases HX with ⟨X2, -, HX⟩
          ihave X2 := (Entails.of_eq (xP_pos d L fx v2)) $$ X2
          ihave X2 := (Entails.of_eq (in_congr d L (off_6 L k v2).symm (in_inb L _) (k11_off6_inb L k k11_h3) fx)) $$ X2
          ihave HOut := (Entails.of_eq (oSet_out (oMix d L fx k.val) k.val hk)) $$ HOut
          icases HOut with ⟨Y0, Y1, HOut⟩
          ihave Y0 := (Entails.of_eq ((oMix_ge d L fx (t := k.val) (n := 2 * k.val) (by omega)).trans (oP_pos (F := F) d L v0))) $$ Y0
          icases Y0 with ⟨%f0, Y0⟩
          ihave Y0 := (Entails.of_eq (out_congr d L (off_5 L k v0).symm (out_inb L _) (k11_off5_inb L k k11_h2) f0)) $$ Y0
          ihave Y1 := (Entails.of_eq ((oMix_ge d L fx (t := k.val) (n := 2 * k.val + 1) (by omega)).trans (oP_pos (F := F) d L v1))) $$ Y1
          icases Y1 with ⟨%f1, Y1⟩
          ihave Y1 := (Entails.of_eq (out_congr d L (off_10 L k v1).symm (out_inb L _) (k11_off10_inb L k k11_h5) f1)) $$ Y1
          sl_exec
          sl_for (laneV0 d L g4) $$ [F8_dst R6]
          case region =>
            intro (j : Fin k11_t2_loop.trips) _
            unfold laneV0
            iintro ⟨HA, %g, HB, %hl⟩
            sl_exec
            sl_step
            isplitl [HA]; · iexact HA
            iexists _; isplitl [HB]; · iexact HB
            ipureintro; exact lanes_step d L a4 a6 g4 g j _ _ hl
          · unfold laneV0
            isplitl [F8_dst]; · iexact F8_dst
            iexists _; isplitl [R6]; · iexact R6
            ipureintro; exact lanes_zero d L a4 a6 g4 _
          iintro %_ HI
          unfold laneV0
          icases HI with ⟨H4, %g6', H6, %hl6⟩
          have hl6 : Lanes d L a4 a6 g4 g6' 200 := Eq.mp (congrArg (Lanes d L a4 a6 g4 g6') trips2) hl6
          sl_exec
          sl_for (laneV1 d L g5) $$ [F9_dst R7]
          case region =>
            intro (j : Fin k11_t3_loop.trips) _
            unfold laneV1
            iintro ⟨HA, %g, HB, %hl⟩
            sl_exec
            sl_step
            isplitl [HA]; · iexact HA
            iexists _; isplitl [HB]; · iexact HB
            ipureintro; exact lanes_step' d L a5 a7 g5 g j _ _ hl
          · unfold laneV1
            isplitl [F9_dst]; · iexact F9_dst
            iexists _; isplitl [R7]; · iexact R7
            ipureintro; exact lanes_zero d L a5 a7 g5 _
          iintro %_ HI
          unfold laneV1
          icases HI with ⟨H5, %g7', H7, %hl7⟩
          have hl7 : Lanes d L a5 a7 g5 g7' 200 := Eq.mp (congrArg (Lanes d L a5 a7 g5 g7') trips3) hl7
          sl_exec
          sl_step
          isplitr; · iexact Hmw
          isplitl [HO]
          · iexists _; isplitr
            rotate_left
            · iexact HO
            ipureintro; intro p hp
            rcases Finset.mem_insert.mp hp with rfl | hp
            · exact .inr rfl
            rcases Finset.mem_insert.mp hp with rfl | hp
            · exact .inr rfl
            rcases Finset.mem_insert.mp hp with rfl | hp
            · exact .inr rfl
            rcases Finset.mem_insert.mp hp with rfl | hp
            · exact .inr rfl
            exact hW' p hp
          isplitl [HX F8_src F9_src]
          · iapply (Entails.of_eq (xSet_in (xP d L fx) k.val hk).symm)
            isplitl [F8_src]; · iapply (Entails.of_eq (xP_pos d L fx v0).symm); iexact F8_src
            isplitl [F9_src]; · iapply (Entails.of_eq (xP_pos d L fx v1).symm); iexact F9_src
            iexact HX
          isplitl [HOut F10_dst F11_dst]
          · iapply (Entails.of_eq (oSet_in (oMix d L fx (k.val + 1)) k.val hk (by omega)).symm)
            isplitl [F10_dst]; · iapply (Entails.of_eq ((oMix_lt d L fx (t := k.val + 1) (n := 2 * k.val - 2) (by omega)).trans (oQ_pos d L fx hm0.2)).symm); iexact F10_dst
            isplitl [F11_dst]
            · iapply (Entails.of_eq ((oMix_lt d L fx (t := k.val + 1) (n := 2 * k.val - 1) (by omega)).trans (oQ_pos d L fx (n := 2 * k.val - 1) (by have := hm1.2; rwa [show 2 * k.val + 1 - 2 = 2 * k.val - 1 by omega] at this))).symm)
              iapply (Entails.of_eq (congrArg (oqPiece d L fx) (show 2 * k.val + 1 - 2 = 2 * k.val - 1 by omega))); iexact F11_dst
            iapply (Entails.of_eq (oMix_core d L fx k.val)); iexact HOut
          isplitl [F8]
          · iapply (Entails.of_eq (congrArg (inSlotV d L fx a4 cc11_scratch4.sem) (show 2 * k.val + 2 = 2 * (k.val + 1) by ring)))
            iapply (fl_inV d L fx (off_6 L k v2) (k11_off6_inb L k k11_h3) v2 a4 cc11_scratch4.sem); iexists _, _
            isplitr
            rotate_left
            · iexact F8
            ipureintro; intro y; rfl
          isplitl [F10 H6]
          · iapply (Entails.of_eq (congrArg (outSlotV d L fx a6 cc11_scratch6.sem) (show 2 * k.val + 2 = 2 * (k.val + 1) by ring)))
            iapply (fl_outV d L fx (off_5 L k v0) (k11_off5_inb L k k11_h2) v0 a4 a6 cc11_scratch6.sem f0 g4 g6' hl6 hin4); iexists _
            isplitr
            rotate_left
            · isplitl [F10]; · iexact F10
              iexact H6
            ipureintro; intro y; rfl
          isplitl [H5 F9]
          · iapply (Entails.of_eq (congrArg (inSlotV d L fx a5 cc11_scratch5.sem) (show 2 * k.val + 3 = 2 * (k.val + 1) + 1 by ring)))
            iapply (Entails.of_eq (inSlotV_neg d L fx v3').symm)
            isplitl [H5]; · iexists _; iexact H5
            iexact F9
          · iapply (Entails.of_eq (congrArg (outSlotV d L fx a7 cc11_scratch7.sem) (show 2 * k.val + 1 + 2 = 2 * (k.val + 1) + 1 by ring)))
            iapply (fl_outV d L fx (off_10 L k v1) (k11_off10_inb L k k11_h5) v1 a5 a7 cc11_scratch7.sem f1 g5 g7' hl7 hin5); iexists _
            isplitr
            rotate_left
            · isplitl [F11]; · iexact F11
              iexact H7
            ipureintro; intro y; rfl
        · have h7 : k.val = 7 := by unfold valid at v3; omega
          by_cases hb : big L
          · -- the last trip of a tile with sixteen pieces: nothing more to fetch
            have k11_h1 : k11_cond1 k = 1#1 := (cond1_iff k).mpr (by omega)
            have k11_h2 : k11_cond2 L k = 1#1 := cond2_iff L k
            have k11_h3 : ¬ k11_cond3 L k = 1#1 := fun h => absurd ((cond3_iff L k).mp h) (by omega)
            have k11_h4 : k11_cond4 k = 1#1 := (cond4_iff k).mpr (by omega)
            have k11_h5 : k11_cond5 L k = 1#1 := (cond5_iff L k).mpr (by first | (unfold valid big at *; omega) | (unfold big at *; omega) | omega)
            have k11_h6 : ¬ k11_cond6 L k = 1#1 := fun h => absurd ((cond6_iff L k).mp h) (by first | (unfold valid big at *; omega) | (unfold big at *; omega) | omega)
            have v0 : valid L (2 * k.val) := by unfold valid big at *; omega
            have v1 : valid L (2 * k.val + 1) := by unfold valid big at *; omega
            have v2 : ¬ valid L (2 * k.val + 2) := by unfold valid big at *; omega
            have v3' : ¬ valid L (2 * k.val + 3) := by unfold valid big at *; omega
            have hm0 : 2 ≤ 2 * k.val ∧ valid L (2 * k.val - 2) := ⟨by omega, by unfold valid big at *; omega⟩
            have hm1 : 2 ≤ 2 * k.val + 1 ∧ valid L (2 * k.val + 1 - 2) := ⟨by omega, by unfold valid big at *; omega⟩
            ihave S8 := (Entails.of_eq (inSlotV_pos d L fx v0)) $$ S8
            icases S8 with ⟨%g4, %hin4, F8⟩
            ihave S9 := (Entails.of_eq (inSlotV_pos d L fx v1)) $$ S9
            icases S9 with ⟨%g5, %hin5, F9⟩
            ihave S10 := (Entails.of_eq (outSlotV_pos d L fx hm0)) $$ S10
            icases S10 with ⟨%g6, F10, R6⟩
            ihave S11 := (Entails.of_eq (outSlotV_pos d L fx hm1)) $$ S11
            icases S11 with ⟨%g7, F11, R7⟩
            ihave HX := (Entails.of_eq (xSet_out (xP d L fx) k.val hk)) $$ HX
            icases HX with ⟨-, -, HX⟩
            ihave HOut := (Entails.of_eq (oSet_out (oMix d L fx k.val) k.val hk)) $$ HOut
            icases HOut with ⟨Y0, Y1, HOut⟩
            ihave Y0 := (Entails.of_eq ((oMix_ge d L fx (t := k.val) (n := 2 * k.val) (by omega)).trans (oP_pos (F := F) d L v0))) $$ Y0
            icases Y0 with ⟨%f0, Y0⟩
            ihave Y0 := (Entails.of_eq (out_congr d L (off_5 L k v0).symm (out_inb L _) (k11_off5_inb L k k11_h2) f0)) $$ Y0
            ihave Y1 := (Entails.of_eq ((oMix_ge d L fx (t := k.val) (n := 2 * k.val + 1) (by omega)).trans (oP_pos (F := F) d L v1))) $$ Y1
            icases Y1 with ⟨%f1, Y1⟩
            ihave Y1 := (Entails.of_eq (out_congr d L (off_10 L k v1).symm (out_inb L _) (k11_off10_inb L k k11_h5) f1)) $$ Y1
            sl_exec
            sl_for (laneV0 d L g4) $$ [F8_dst R6]
            case region =>
              intro (j : Fin k11_t2_loop.trips) _
              unfold laneV0
              iintro ⟨HA, %g, HB, %hl⟩
              sl_exec
              sl_step
              isplitl [HA]; · iexact HA
              iexists _; isplitl [HB]; · iexact HB
              ipureintro; exact lanes_step d L a4 a6 g4 g j _ _ hl
            · unfold laneV0
              isplitl [F8_dst]; · iexact F8_dst
              iexists _; isplitl [R6]; · iexact R6
              ipureintro; exact lanes_zero d L a4 a6 g4 _
            iintro %_ HI
            unfold laneV0
            icases HI with ⟨H4, %g6', H6, %hl6⟩
            have hl6 : Lanes d L a4 a6 g4 g6' 200 := Eq.mp (congrArg (Lanes d L a4 a6 g4 g6') trips2) hl6
            sl_exec
            sl_for (laneV1 d L g5) $$ [F9_dst R7]
            case region =>
              intro (j : Fin k11_t3_loop.trips) _
              unfold laneV1
              iintro ⟨HA, %g, HB, %hl⟩
              sl_exec
              sl_step
              isplitl [HA]; · iexact HA
              iexists _; isplitl [HB]; · iexact HB
              ipureintro; exact lanes_step' d L a5 a7 g5 g j _ _ hl
            · unfold laneV1
              isplitl [F9_dst]; · iexact F9_dst
              iexists _; isplitl [R7]; · iexact R7
              ipureintro; exact lanes_zero d L a5 a7 g5 _
            iintro %_ HI
            unfold laneV1
            icases HI with ⟨H5, %g7', H7, %hl7⟩
            have hl7 : Lanes d L a5 a7 g5 g7' 200 := Eq.mp (congrArg (Lanes d L a5 a7 g5 g7') trips3) hl7
            sl_exec
            sl_step
            isplitr; · iexact Hmw
            isplitl [HO]
            · iexists _; isplitr
              rotate_left
              · iexact HO
              ipureintro; intro p hp
              rcases Finset.mem_insert.mp hp with rfl | hp
              · exact .inr rfl
              rcases Finset.mem_insert.mp hp with rfl | hp
              · exact .inr rfl
              rcases Finset.mem_insert.mp hp with rfl | hp
              · exact .inr rfl
              rcases Finset.mem_insert.mp hp with rfl | hp
              · exact .inr rfl
              exact hW' p hp
            isplitl [HX F8_src F9_src]
            · iapply (Entails.of_eq (xSet_in (xP d L fx) k.val hk).symm)
              isplitl [F8_src]; · iapply (Entails.of_eq (xP_pos d L fx v0).symm); iexact F8_src
              isplitl [F9_src]; · iapply (Entails.of_eq (xP_pos d L fx v1).symm); iexact F9_src
              iexact HX
            isplitl [HOut F10_dst F11_dst]
            · iapply (Entails.of_eq (oSet_in (oMix d L fx (k.val + 1)) k.val hk (by omega)).symm)
              isplitl [F10_dst]; · iapply (Entails.of_eq ((oMix_lt d L fx (t := k.val + 1) (n := 2 * k.val - 2) (by omega)).trans (oQ_pos d L fx hm0.2)).symm); iexact F10_dst
              isplitl [F11_dst]
              · iapply (Entails.of_eq ((oMix_lt d L fx (t := k.val + 1) (n := 2 * k.val - 1) (by omega)).trans (oQ_pos d L fx (n := 2 * k.val - 1) (by have := hm1.2; rwa [show 2 * k.val + 1 - 2 = 2 * k.val - 1 by omega] at this))).symm)
                iapply (Entails.of_eq (congrArg (oqPiece d L fx) (show 2 * k.val + 1 - 2 = 2 * k.val - 1 by omega))); iexact F11_dst
              iapply (Entails.of_eq (oMix_core d L fx k.val)); iexact HOut
            isplitl [H4 F8]
            · iapply (Entails.of_eq (congrArg (inSlotV d L fx a4 cc11_scratch4.sem) (show 2 * k.val + 2 = 2 * (k.val + 1) by ring)))
              iapply (Entails.of_eq (inSlotV_neg d L fx v2).symm)
              isplitl [H4]; · iexists _; iexact H4
              iexact F8
            isplitl [F10 H6]
            · iapply (Entails.of_eq (congrArg (outSlotV d L fx a6 cc11_scratch6.sem) (show 2 * k.val + 2 = 2 * (k.val + 1) by ring)))
              iapply (fl_outV d L fx (off_5 L k v0) (k11_off5_inb L k k11_h2) v0 a4 a6 cc11_scratch6.sem f0 g4 g6' hl6 hin4); iexists _
              isplitr
              rotate_left
              · isplitl [F10]; · iexact F10
                iexact H6
              ipureintro; intro y; rfl
            isplitl [H5 F9]
            · iapply (Entails.of_eq (congrArg (inSlotV d L fx a5 cc11_scratch5.sem) (show 2 * k.val + 3 = 2 * (k.val + 1) + 1 by ring)))
              iapply (Entails.of_eq (inSlotV_neg d L fx v3').symm)
              isplitl [H5]; · iexists _; iexact H5
              iexact F9
            · iapply (Entails.of_eq (congrArg (outSlotV d L fx a7 cc11_scratch7.sem) (show 2 * k.val + 1 + 2 = 2 * (k.val + 1) + 1 by ring)))
              iapply (fl_outV d L fx (off_10 L k v1) (k11_off10_inb L k k11_h5) v1 a5 a7 cc11_scratch7.sem f1 g5 g7' hl7 hin5); iexists _
              isplitr
              rotate_left
              · isplitl [F11]; · iexact F11
                iexact H7
              ipureintro; intro y; rfl
          · -- the last trip of a tile with fifteen pieces: the second slot only drains
            have k11_h1 : k11_cond1 k = 1#1 := (cond1_iff k).mpr (by omega)
            have k11_h2 : k11_cond2 L k = 1#1 := cond2_iff L k
            have k11_h3 : ¬ k11_cond3 L k = 1#1 := fun h => absurd ((cond3_iff L k).mp h) (by omega)
            have k11_h4 : k11_cond4 k = 1#1 := (cond4_iff k).mpr (by omega)
            have k11_h5 : ¬ k11_cond5 L k = 1#1 := fun h => absurd ((cond5_iff L k).mp h) (by first | (unfold valid big at *; omega) | (unfold big at *; omega) | omega)
            have k11_h6 : ¬ k11_cond6 L k = 1#1 := fun h => absurd ((cond6_iff L k).mp h) (by first | (unfold valid big at *; omega) | (unfold big at *; omega) | omega)
            have v0 : valid L (2 * k.val) := by unfold valid big at *; omega
            have v1 : ¬ valid L (2 * k.val + 1) := by unfold valid big at *; omega
            have v2 : ¬ valid L (2 * k.val + 2) := by unfold valid big at *; omega
            have v3' : ¬ valid L (2 * k.val + 3) := by unfold valid big at *; omega
            have hm0 : 2 ≤ 2 * k.val ∧ valid L (2 * k.val - 2) := ⟨by omega, by unfold valid big at *; omega⟩
            have hm1 : 2 ≤ 2 * k.val + 1 ∧ valid L (2 * k.val + 1 - 2) := ⟨by omega, by unfold valid big at *; omega⟩
            ihave S8 := (Entails.of_eq (inSlotV_pos d L fx v0)) $$ S8
            icases S8 with ⟨%g4, %hin4, F8⟩
            ihave S9 := (Entails.of_eq (inSlotV_neg d L fx v1)) $$ S9
            icases S9 with ⟨⟨%g5, H5⟩, F9⟩
            ihave S10 := (Entails.of_eq (outSlotV_pos d L fx hm0)) $$ S10
            icases S10 with ⟨%g6, F10, R6⟩
            ihave S11 := (Entails.of_eq (outSlotV_pos d L fx hm1)) $$ S11
            icases S11 with ⟨%g7, F11, R7⟩
            ihave HX := (Entails.of_eq (xSet_out (xP d L fx) k.val hk)) $$ HX
            icases HX with ⟨-, -, HX⟩
            ihave HOut := (Entails.of_eq (oSet_out (oMix d L fx k.val) k.val hk)) $$ HOut
            icases HOut with ⟨Y0, -, HOut⟩
            ihave Y0 := (Entails.of_eq ((oMix_ge d L fx (t := k.val) (n := 2 * k.val) (by omega)).trans (oP_pos (F := F) d L v0))) $$ Y0
            icases Y0 with ⟨%f0, Y0⟩
            ihave Y0 := (Entails.of_eq (out_congr d L (off_5 L k v0).symm (out_inb L _) (k11_off5_inb L k k11_h2) f0)) $$ Y0
            sl_exec
            sl_for (laneV0 d L g4) $$ [F8_dst R6]
            case region =>
              intro (j : Fin k11_t2_loop.trips) _
              unfold laneV0
              iintro ⟨HA, %g, HB, %hl⟩
              sl_exec
              sl_step
              isplitl [HA]; · iexact HA
              iexists _; isplitl [HB]; · iexact HB
              ipureintro; exact lanes_step d L a4 a6 g4 g j _ _ hl
            · unfold laneV0
              isplitl [F8_dst]; · iexact F8_dst
              iexists _; isplitl [R6]; · iexact R6
              ipureintro; exact lanes_zero d L a4 a6 g4 _
            iintro %_ HI
            unfold laneV0
            icases HI with ⟨H4, %g6', H6, %hl6⟩
            have hl6 : Lanes d L a4 a6 g4 g6' 200 := Eq.mp (congrArg (Lanes d L a4 a6 g4 g6') trips2) hl6
            sl_exec
            sl_step
            isplitr; · iexact Hmw
            isplitl [HO]
            · iexists _; isplitr
              rotate_left
              · iexact HO
              ipureintro; intro p hp
              rcases Finset.mem_insert.mp hp with rfl | hp
              · exact .inr rfl
              rcases Finset.mem_insert.mp hp with rfl | hp
              · exact .inr rfl
              rcases Finset.mem_insert.mp hp with rfl | hp
              · exact .inr rfl
              exact hW' p hp
            isplitl [HX F8_src]
            · iapply (Entails.of_eq (xSet_in (xP d L fx) k.val hk).symm)
              isplitl [F8_src]; · iapply (Entails.of_eq (xP_pos d L fx v0).symm); iexact F8_src
              isplitr; · iapply (Entails.of_eq (xP_neg d L fx v1).symm); iempintro
              iexact HX
            isplitl [HOut F10_dst F11_dst]
            · iapply (Entails.of_eq (oSet_in (oMix d L fx (k.val + 1)) k.val hk (by omega)).symm)
              isplitl [F10_dst]; · iapply (Entails.of_eq ((oMix_lt d L fx (t := k.val + 1) (n := 2 * k.val - 2) (by omega)).trans (oQ_pos d L fx hm0.2)).symm); iexact F10_dst
              isplitl [F11_dst]
              · iapply (Entails.of_eq ((oMix_lt d L fx (t := k.val + 1) (n := 2 * k.val - 1) (by omega)).trans (oQ_pos d L fx (n := 2 * k.val - 1) (by have := hm1.2; rwa [show 2 * k.val + 1 - 2 = 2 * k.val - 1 by omega] at this))).symm)
                iapply (Entails.of_eq (congrArg (oqPiece d L fx) (show 2 * k.val + 1 - 2 = 2 * k.val - 1 by omega))); iexact F11_dst
              iapply (Entails.of_eq (oMix_core d L fx k.val)); iexact HOut
            isplitl [H4 F8]
            · iapply (Entails.of_eq (congrArg (inSlotV d L fx a4 cc11_scratch4.sem) (show 2 * k.val + 2 = 2 * (k.val + 1) by ring)))
              iapply (Entails.of_eq (inSlotV_neg d L fx v2).symm)
              isplitl [H4]; · iexists _; iexact H4
              iexact F8
            isplitl [F10 H6]
            · iapply (Entails.of_eq (congrArg (outSlotV d L fx a6 cc11_scratch6.sem) (show 2 * k.val + 2 = 2 * (k.val + 1) by ring)))
              iapply (fl_outV d L fx (off_5 L k v0) (k11_off5_inb L k k11_h2) v0 a4 a6 cc11_scratch6.sem f0 g4 g6' hl6 hin4); iexists _
              isplitr
              rotate_left
              · isplitl [F10]; · iexact F10
                iexact H6
              ipureintro; intro y; rfl
            isplitl [H5 F9]
            · iapply (Entails.of_eq (congrArg (inSlotV d L fx a5 cc11_scratch5.sem) (show 2 * k.val + 3 = 2 * (k.val + 1) + 1 by ring)))
              iapply (Entails.of_eq (inSlotV_neg d L fx v3').symm)
              isplitl [H5]; · iexists _; iexact H5
              iexact F9
            · iapply (Entails.of_eq (outSlotV_neg d L fx (m := 2 * (k.val + 1) + 1) (by intro h; apply v1; have := h.2; rwa [show 2 * (k.val + 1) + 1 - 2 = 2 * k.val + 1 by omega] at this)).symm)
              isplitl [R7]; · iexists _; iexact R7
              iexact F11
    · have hk0 : k.val = 0 := by omega
      -- the first trip: nothing to drain
      have k11_h1 : ¬ k11_cond1 k = 1#1 := fun h => absurd ((cond1_iff k).mp h) (by omega)
      have k11_h2 : k11_cond2 L k = 1#1 := cond2_iff L k
      have k11_h3 : k11_cond3 L k = 1#1 := (cond3_iff L k).mpr (by omega)
      have k11_h4 : ¬ k11_cond4 k = 1#1 := fun h => absurd ((cond4_iff k).mp h) (by omega)
      have k11_h5 : k11_cond5 L k = 1#1 := (cond5_iff L k).mpr (by first | (unfold valid big at *; omega) | (unfold big at *; omega) | omega)
      have k11_h6 : k11_cond6 L k = 1#1 := (cond6_iff L k).mpr (by first | (unfold valid big at *; omega) | (unfold big at *; omega) | omega)
      have v0 : valid L (2 * k.val) := by unfold valid big at *; omega
      have v1 : valid L (2 * k.val + 1) := by unfold valid big at *; omega
      have v2 : valid L (2 * k.val + 2) := by unfold valid big at *; omega
      have v3' : valid L (2 * k.val + 3) := by unfold valid big at *; omega
      have hm0 : ¬ (2 ≤ 2 * k.val ∧ valid L (2 * k.val - 2)) := by omega
      have hm1 : ¬ (2 ≤ 2 * k.val + 1 ∧ valid L (2 * k.val + 1 - 2)) := by omega
      ihave S8 := (Entails.of_eq (inSlotV_pos d L fx v0)) $$ S8
      icases S8 with ⟨%g4, %hin4, F8⟩
      ihave S9 := (Entails.of_eq (inSlotV_pos d L fx v1)) $$ S9
      icases S9 with ⟨%g5, %hin5, F9⟩
      ihave S10 := (Entails.of_eq (outSlotV_neg d L fx hm0)) $$ S10
      icases S10 with ⟨⟨%g6, R6⟩, F10⟩
      ihave S11 := (Entails.of_eq (outSlotV_neg d L fx hm1)) $$ S11
      icases S11 with ⟨⟨%g7, R7⟩, F11⟩
      ihave HX := (Entails.of_eq (xSet_out (xP d L fx) k.val hk)) $$ HX
      icases HX with ⟨X2, X3, HX⟩
      ihave X2 := (Entails.of_eq (xP_pos d L fx v2)) $$ X2
      ihave X2 := (Entails.of_eq (in_congr d L (off_6 L k v2).symm (in_inb L _) (k11_off6_inb L k k11_h3) fx)) $$ X2
      ihave X3 := (Entails.of_eq (xP_pos d L fx v3')) $$ X3
      ihave X3 := (Entails.of_eq (in_congr d L (off_11 L k v3').symm (in_inb L _) (k11_off11_inb L k k11_h6) fx)) $$ X3
      ihave HOut := (Entails.of_eq (oSet_out (oMix d L fx k.val) k.val hk)) $$ HOut
      icases HOut with ⟨Y0, Y1, HOut⟩
      ihave Y0 := (Entails.of_eq ((oMix_ge d L fx (t := k.val) (n := 2 * k.val) (by omega)).trans (oP_pos (F := F) d L v0))) $$ Y0
      icases Y0 with ⟨%f0, Y0⟩
      ihave Y0 := (Entails.of_eq (out_congr d L (off_5 L k v0).symm (out_inb L _) (k11_off5_inb L k k11_h2) f0)) $$ Y0
      ihave Y1 := (Entails.of_eq ((oMix_ge d L fx (t := k.val) (n := 2 * k.val + 1) (by omega)).trans (oP_pos (F := F) d L v1))) $$ Y1
      icases Y1 with ⟨%f1, Y1⟩
      ihave Y1 := (Entails.of_eq (out_congr d L (off_10 L k v1).symm (out_inb L _) (k11_off10_inb L k k11_h5) f1)) $$ Y1
      sl_exec
      sl_for (laneV0 d L g4) $$ [F8_dst R6]
      case region =>
        intro (j : Fin k11_t2_loop.trips) _
        unfold laneV0
        iintro ⟨HA, %g, HB, %hl⟩
        sl_exec
        sl_step
        isplitl [HA]; · iexact HA
        iexists _; isplitl [HB]; · iexact HB
        ipureintro; exact lanes_step d L a4 a6 g4 g j _ _ hl
      · unfold laneV0
        isplitl [F8_dst]; · iexact F8_dst
        iexists _; isplitl [R6]; · iexact R6
        ipureintro; exact lanes_zero d L a4 a6 g4 _
      iintro %_ HI
      unfold laneV0
      icases HI with ⟨H4, %g6', H6, %hl6⟩
      have hl6 : Lanes d L a4 a6 g4 g6' 200 := Eq.mp (congrArg (Lanes d L a4 a6 g4 g6') trips2) hl6
      sl_exec
      sl_for (laneV1 d L g5) $$ [F9_dst R7]
      case region =>
        intro (j : Fin k11_t3_loop.trips) _
        unfold laneV1
        iintro ⟨HA, %g, HB, %hl⟩
        sl_exec
        sl_step
        isplitl [HA]; · iexact HA
        iexists _; isplitl [HB]; · iexact HB
        ipureintro; exact lanes_step' d L a5 a7 g5 g j _ _ hl
      · unfold laneV1
        isplitl [F9_dst]; · iexact F9_dst
        iexists _; isplitl [R7]; · iexact R7
        ipureintro; exact lanes_zero d L a5 a7 g5 _
      iintro %_ HI
      unfold laneV1
      icases HI with ⟨H5, %g7', H7, %hl7⟩
      have hl7 : Lanes d L a5 a7 g5 g7' 200 := Eq.mp (congrArg (Lanes d L a5 a7 g5 g7') trips3) hl7
      sl_exec
      sl_step
      isplitr; · iexact Hmw
      isplitl [HO]
      · iexists _; isplitr
        rotate_left
        · iexact HO
        ipureintro; intro p hp
        rcases Finset.mem_insert.mp hp with rfl | hp
        · exact .inr rfl
        rcases Finset.mem_insert.mp hp with rfl | hp
        · exact .inr rfl
        exact hW' p hp
      isplitl [HX F8_src F9_src]
      · iapply (Entails.of_eq (xSet_in (xP d L fx) k.val hk).symm)
        isplitl [F8_src]; · iapply (Entails.of_eq (xP_pos d L fx v0).symm); iexact F8_src
        isplitl [F9_src]; · iapply (Entails.of_eq (xP_pos d L fx v1).symm); iexact F9_src
        iexact HX
      isplitl [HOut]
      · iapply (Entails.of_eq (congrArg (fun s => bigSep s (oMix d L fx (k.val + 1))) (show oCore k.val = oSet (k.val + 1) by rw [hk0]; decide)))
        iapply (Entails.of_eq (oMix_core d L fx k.val)); iexact HOut
      isplitl [F8]
      · iapply (Entails.of_eq (congrArg (inSlotV d L fx a4 cc11_scratch4.sem) (show 2 * k.val + 2 = 2 * (k.val + 1) by ring)))
        iapply (fl_inV d L fx (off_6 L k v2) (k11_off6_inb L k k11_h3) v2 a4 cc11_scratch4.sem); iexists _, _
        isplitr
        rotate_left
        · iexact F8
        ipureintro; intro y; rfl
      isplitl [F10 H6]
      · iapply (Entails.of_eq (congrArg (outSlotV d L fx a6 cc11_scratch6.sem) (show 2 * k.val + 2 = 2 * (k.val + 1) by ring)))
        iapply (fl_outV d L fx (off_5 L k v0) (k11_off5_inb L k k11_h2) v0 a4 a6 cc11_scratch6.sem f0 g4 g6' hl6 hin4); iexists _
        isplitr
        rotate_left
        · isplitl [F10]; · iexact F10
          iexact H6
        ipureintro; intro y; rfl
      isplitl [F9]
      · iapply (Entails.of_eq (congrArg (inSlotV d L fx a5 cc11_scratch5.sem) (show 2 * k.val + 3 = 2 * (k.val + 1) + 1 by ring)))
        iapply (fl_inV d L fx (off_11 L k v3') (k11_off11_inb L k k11_h6) v3' a5 cc11_scratch5.sem); iexists _, _
        isplitr
        rotate_left
        · iexact F9
        ipureintro; intro y; rfl
      · iapply (Entails.of_eq (congrArg (outSlotV d L fx a7 cc11_scratch7.sem) (show 2 * k.val + 1 + 2 = 2 * (k.val + 1) + 1 by ring)))
        iapply (fl_outV d L fx (off_10 L k v1) (k11_off10_inb L k k11_h5) v1 a5 a7 cc11_scratch7.sem f1 g5 g7' hl7 hin5); iexists _
        isplitr
        rotate_left
        · isplitl [F11]; · iexact F11
          iexact H7
        ipureintro; intro y; rfl
  · unfold invV
    isplitr; · iexact Hmw
    isplitl [HO]
    · iexists W; isplitr
      · ipureintro; exact fun p hp => .inl hp
      · iexact HO
    isplitl [HX]; · iexact HX
    isplitl [HOut]; · iapply (Entails.of_eq (oMix_zero d L fx).symm); iexact HOut
    isplitl [S8]; · iexact S8
    isplitl [H6 Hs10]
    · rw [outSlotV_neg d L fx (by omega)]; isplitl [H6]; · iexists _; iexact H6
      iexact Hs10
    isplitl [S9]; · iexact S9
    rw [outSlotV_neg d L fx (by omega)]; isplitl [H7]; · iexists _; iexact H7
    iexact Hs11
  iintro %acc' HI
  ihave HI := (Entails.of_eq (congrArg (fun t => invV d L O W fx t acc') trips1)) $$ HI
  unfold invV
  icases HI with ⟨-, ⟨%W', %hW', HO⟩, HX, HOut, S8, S10, S9, S11⟩
  have nv16 : ¬ valid L (2 * 8) := by unfold valid; omega
  have nv17 : ¬ valid L (2 * 8 + 1) := by unfold valid; omega
  have hm14 : 2 ≤ 2 * 8 ∧ valid L (2 * 8 - 2) := ⟨by omega, Or.inl (by omega)⟩
  ihave S8 := (Entails.of_eq (inSlotV_neg d L fx nv16)) $$ S8
  icases S8 with ⟨⟨%g4', H4⟩, Hs8⟩
  ihave S9 := (Entails.of_eq (inSlotV_neg d L fx nv17)) $$ S9
  icases S9 with ⟨⟨%g5', H5⟩, Hs9⟩
  ihave S10 := (Entails.of_eq (outSlotV_pos d L fx hm14)) $$ S10
  icases S10 with ⟨%g6', F10, R6⟩
  by_cases hb : big L
  · have k11_h8 : k11_cond8 L = 1#1 := (cond8_iff L).mpr hb
    have hm15 : 2 ≤ 2 * 8 + 1 ∧ valid L (2 * 8 + 1 - 2) := ⟨by omega, Or.inr ⟨by omega, hb⟩⟩
    ihave S11 := (Entails.of_eq (outSlotV_pos d L fx hm15)) $$ S11
    icases S11 with ⟨%g7', F11, R7⟩
    sl_exec
    sl_step
    isplitl [HX]; · iapply (xRange_end d L fx); iexact HX
    isplitl [HOut F10_dst F11_dst]
    · iapply (Entails.of_eq (oRange_end (oQ d L fx)).symm)
      isplitl [F10_dst]; · iapply (Entails.of_eq (oQ_pos d L fx hm14.2).symm); iexact F10_dst
      isplitl [F11_dst]; · iapply (Entails.of_eq (oQ_pos d L fx hm15.2).symm); iexact F11_dst
      iapply (Entails.of_eq (oMix_end d L fx)); iexact HOut
    isplitl [H4]; · iexists _; iexact H4
    isplitl [H5]; · iexists _; iexact H5
    isplitl [R6]; · iexists _; iexact R6
    isplitl [R7]; · iexists _; iexact R7
    isplitl [Hs8]; · iexact Hs8
    isplitl [Hs9]; · iexact Hs9
    isplitl [F10]; · iexact F10
    isplitl [F11]; · iexact F11
    isplitl [HO]
    · iexists _; isplitr
      rotate_left
      · iexact HO
      ipureintro; intro p hp
      rcases Finset.mem_insert.mp hp with rfl | hp
      · exact .inr rfl
      rcases Finset.mem_insert.mp hp with rfl | hp
      · exact .inr rfl
      exact hW' p hp
    iexact HR
  · have k11_h8 : ¬ k11_cond8 L = 1#1 := fun h => hb ((cond8_iff L).mp h)
    have hm15 : ¬ (2 ≤ 2 * 8 + 1 ∧ valid L (2 * 8 + 1 - 2)) := by intro h; have := h.2; unfold valid at this; omega
    ihave S11 := (Entails.of_eq (outSlotV_neg d L fx hm15)) $$ S11
    icases S11 with ⟨⟨%g7', R7⟩, F11⟩
    sl_exec
    sl_step
    isplitl [HX]; · iapply (xRange_end d L fx); iexact HX
    isplitl [HOut F10_dst]
    · iapply (Entails.of_eq (oRange_end (oQ d L fx)).symm)
      isplitl [F10_dst]; · iapply (Entails.of_eq (oQ_pos d L fx hm14.2).symm); iexact F10_dst
      isplitr; · iapply (Entails.of_eq (oQ_neg d L fx (n := 15) (by unfold valid; omega)).symm); iempintro
      iapply (Entails.of_eq (oMix_end d L fx)); iexact HOut
    isplitl [H4]; · iexists _; iexact H4
    isplitl [H5]; · iexists _; iexact H5
    isplitl [R6]; · iexists _; iexact R6
    isplitl [R7]; · iexists _; iexact R7
    isplitl [Hs8]; · iexact Hs8
    isplitl [Hs9]; · iexact Hs9
    isplitl [F10]; · iexact F10
    isplitl [F11]; · iexact F11
    isplitl [HO]
    · iexists _; isplitr
      rotate_left
      · iexact HO
      ipureintro; intro p hp
      rcases Finset.mem_insert.mp hp with rfl | hp
      · exact .inr rfl
      exact hW' p hp
    iexact HR

/-! The subcore's scoped storage: the four staging buffers and the four semaphores of this call, and the rest. -/

abbrev c8 : GSem nD τ sig := (thr d L, SemLoc.dma cc11_scratch4.sem)
abbrev c9 : GSem nD τ sig := (thr d L, SemLoc.dma cc11_scratch5.sem)
abbrev c10 : GSem nD τ sig := (thr d L, SemLoc.dma cc11_scratch6.sem)
abbrev c11 : GSem nD τ sig := (thr d L, SemLoc.dma cc11_scratch7.sem)

omit [FloatOps F] in
theorem ownSems0_V :
    (ownSems0 (thr d L) : sProp 𝕄)
      = iprop(semVal (c8 d L) 0 ∗ semVal (c9 d L) 0 ∗ semVal (c10 d L) 0 ∗ semVal (c11 d L) 0
          ∗ bigSep (((((ownCells (thr d L)).erase (c8 d L)).erase (c9 d L)).erase (c10 d L)).erase (c11 d L)) fun g => semVal g 0) := by
  unfold SparseCore.Cfg.ownSems0
  rw [SparseCore.bigSep_erase' ((mem_ownCells (g := c8 d L)).mpr ⟨rfl, by
      show (SemLoc.dma cc11_scratch4.sem : SemLoc sig).isScoped .scVector = true; decide⟩),
    SparseCore.bigSep_erase' (Finset.mem_erase.mpr ⟨fun e => absurd (Prod.mk.inj e).2 (by decide), (mem_ownCells (g := c9 d L)).mpr ⟨rfl, by
      show (SemLoc.dma cc11_scratch5.sem : SemLoc sig).isScoped .scVector = true; decide⟩⟩),
    SparseCore.bigSep_erase' (Finset.mem_erase.mpr ⟨fun e => absurd (Prod.mk.inj e).2 (by decide), Finset.mem_erase.mpr ⟨fun e => absurd (Prod.mk.inj e).2 (by decide),
      (mem_ownCells (g := c10 d L)).mpr ⟨rfl, by show (SemLoc.dma cc11_scratch6.sem : SemLoc sig).isScoped .scVector = true; decide⟩⟩⟩),
    SparseCore.bigSep_erase' (Finset.mem_erase.mpr ⟨fun e => absurd (Prod.mk.inj e).2 (by decide), Finset.mem_erase.mpr ⟨fun e => absurd (Prod.mk.inj e).2 (by decide),
      Finset.mem_erase.mpr ⟨fun e => absurd (Prod.mk.inj e).2 (by decide),
      (mem_ownCells (g := c11 d L)).mpr ⟨rfl, by show (SemLoc.dma cc11_scratch7.sem : SemLoc sig).isScoped .scVector = true; decide⟩⟩⟩⟩)]

abbrev pV (L : grid11.Coords) : Proc τ := Proc.scVector (cV L) (jV L)

omit [FloatOps F] in
theorem ownBufs_V :
    (ownBufs (thr d L) : sProp 𝕄)
      = iprop((∃ f, (thr d L).loc cc11_scratch0 ↦{fullShare} f) ∗ (∃ f, (thr d L).loc cc11_scratch1 ↦{fullShare} f)
          ∗ (∃ f, (thr d L).loc cc11_scratch2 ↦{fullShare} f) ∗ (∃ f, (thr d L).loc cc11_scratch3 ↦{fullShare} f)
          ∗ bigSep (((((ownRefs (τ := τ) (pV L)).erase ((pV L).devRef cc11_scratch0)).erase ((pV L).devRef cc11_scratch1)).erase
              ((pV L).devRef cc11_scratch2)).erase ((pV L).devRef cc11_scratch3))
              fun b => iprop(∃ f, ((d, b) : Loc nD τ sig) ↦{fullShare} f)) := by
  unfold SparseCore.Cfg.ownBufs
  refine (SparseCore.bigSep_erase' (SparseCore.Cfg.mem_ownRefs_of_owner (p := pV L) (b := (pV L).devRef cc11_scratch0) rfl)).trans ?_
  rw [SparseCore.bigSep_erase' (Finset.mem_erase.mpr ⟨fun e => absurd (Proc.devRef_injective _ e) (show (cc11_scratch1 : Ref sig .scVector) ≠ cc11_scratch0 by decide),
      SparseCore.Cfg.mem_ownRefs_of_owner (p := pV L) (b := (pV L).devRef cc11_scratch1) rfl⟩),
    SparseCore.bigSep_erase' (Finset.mem_erase.mpr ⟨fun e => absurd (Proc.devRef_injective _ e) (show (cc11_scratch2 : Ref sig .scVector) ≠ cc11_scratch1 by decide),
      Finset.mem_erase.mpr ⟨fun e => absurd (Proc.devRef_injective _ e) (show (cc11_scratch2 : Ref sig .scVector) ≠ cc11_scratch0 by decide),
      SparseCore.Cfg.mem_ownRefs_of_owner (p := pV L) (b := (pV L).devRef cc11_scratch2) rfl⟩⟩),
    SparseCore.bigSep_erase' (Finset.mem_erase.mpr ⟨fun e => absurd (Proc.devRef_injective _ e) (show (cc11_scratch3 : Ref sig .scVector) ≠ cc11_scratch2 by decide),
      Finset.mem_erase.mpr ⟨fun e => absurd (Proc.devRef_injective _ e) (show (cc11_scratch3 : Ref sig .scVector) ≠ cc11_scratch1 by decide),
      Finset.mem_erase.mpr ⟨fun e => absurd (Proc.devRef_injective _ e) (show (cc11_scratch3 : Ref sig .scVector) ≠ cc11_scratch0 by decide),
      SparseCore.Cfg.mem_ownRefs_of_owner (p := pV L) (b := (pV L).devRef cc11_scratch3) rfl⟩⟩⟩)]

/-- The rest of the subcore's scoped storage, which the task does not touch. -/
def restR : sProp 𝕄 :=
  iprop((bigSep (((((ownRefs (τ := τ) (pV L)).erase ((pV L).devRef cc11_scratch0)).erase ((pV L).devRef cc11_scratch1)).erase
              ((pV L).devRef cc11_scratch2)).erase ((pV L).devRef cc11_scratch3))
              fun b => iprop(∃ f, ((d, b) : Loc nD τ sig) ↦{fullShare} f))
      ∗ bigSep (((((ownCells (thr d L)).erase (c8 d L)).erase (c9 d L)).erase (c10 d L)).erase (c11 d L)) fun g => semVal g 0)

theorem body_pre (hO : ∀ g, O g none = 0) :
    iprop(levAts (K (F := F)).L (K (F := F)).lev ∗ emp ∗ goRes d L fx ∗ ownBufs (thr d L) ∗ ownSems0 (thr d L) ∗ owes (thr d L) O W)
      ⊢ runPre d L O W fx (restR (F := F) d L) := by
  rw [ownSems0_V, ownBufs_V]
  unfold goRes runPre restR
  iintro ⟨#Hlv, -, ⟨HX, HOut⟩, ⟨H4, H5, H6, H7, Hbufs⟩, ⟨Hs8, Hs9, Hs10, Hs11, Hsems⟩, HO⟩
  ihave Hmw := ((K (F := F)).mayWaits_none (thr := thr d L) hO) $$ Hlv
  isplitr; · iexact Hmw
  isplitl [HO]; · iexact HO
  isplitl [HX]; · iexact HX
  isplitl [HOut]; · iexact HOut
  isplitl [H4]; · iexact H4
  isplitl [H5]; · iexact H5
  isplitl [H6]; · iexact H6
  isplitl [H7]; · iexact H7
  isplitl [Hs8]; · iexact Hs8
  isplitl [Hs9]; · iexact Hs9
  isplitl [Hs10]; · iexact Hs10
  isplitl [Hs11]; · iexact Hs11
  isplitl [Hbufs]; · iexact Hbufs
  iexact Hsems

theorem body_post :
    runPost d L O W fx (restR (F := F) d L)
      ⊢ iprop(tdRes d L fx ∗ ownBufs (thr d L) ∗ ownSems0 (thr d L) ∗ ∃ W', ⌜∀ p ∈ W', p ∈ W ∨ p.2 = none⌝ ∗ owes (thr d L) O W') := by
  rw [ownSems0_V, ownBufs_V]
  unfold tdRes runPost restR
  iintro ⟨HX, HOut, H4, H5, H6, H7, Hs8, Hs9, Hs10, Hs11, HW, Hbufs, Hsems⟩
  isplitl [HX HOut]
  · isplitl [HX]; · iexact HX
    iexact HOut
  isplitl [H4 H5 H6 H7 Hbufs]
  · isplitl [H4]; · iexact H4
    isplitl [H5]; · iexact H5
    isplitl [H6]; · iexact H6
    isplitl [H7]; · iexact H7
    iexact Hbufs
  isplitl [Hs8 Hs9 Hs10 Hs11 Hsems]
  · isplitl [Hs8]; · iexact Hs8
    isplitl [Hs9]; · iexact Hs9
    isplitl [Hs10]; · iexact Hs10
    isplitl [Hs11]; · iexact Hs11
    iexact Hsems
  iexact HW

/-- The task in the launch theorem's shape: from what the call hands the tile and the subcore's scoped storage to
    what the tile hands back and the storage again. -/
theorem tile_body (hF : (K (F := F)).Facts) (hO : ∀ g, O g none = 0) :
    iprop(levAts (K (F := F)).L (K (F := F)).lev ∗ emp ∗ goRes d L fx ∗ scopedBufs (thr d L) ∗ scopedSems0 (thr d L) ∗ owes (thr d L) O W)
      ⊢ wp frame (wpE (defs₀ (F := F)) 𝒱₀ (thr d L) none) Set.univ
          (cc11_sc_group L xtW (Memref.isWhole_whole _) oW (Memref.isWhole_whole _) a4 (Memref.isWhole_whole _) a5 (Memref.isWhole_whole _)
            a6 (Memref.isWhole_whole _) a7 (Memref.isWhole_whole _) cc11_scratch4 cc11_scratch5 cc11_scratch6 cc11_scratch7)
          fun _ => iprop(tdRes d L fx ∗ scopedBufs (thr d L) ∗ scopedSems0 (thr d L)
            ∗ ∃ W', ⌜∀ p ∈ W', p ∈ W ∨ p.2 = none⌝ ∗ owes (thr d L) O W') := by
  rw [(K (F := F)).scopedBufs_V hF d (cV L) (jV L), SparseCore.Cfg.scopedSems0_V (Val := Elt F) d (cV L) (jV L)]
  exact (body_pre d L O W fx hO).trans ((tile_run d L O W fx (restR (F := F) d L)).trans (wp_mono frame _ _ fun _ => body_post d L O W fx))

end Tile

end Cert.Proof.TileB11

end
-- ==== Proof.TileVal12.lean ====
/-
  What the staging buffers of one vector subcore hold while it copies a piece of 3200 consecutive elements of row 12 of
  the transposed argument into the flat result, read index by index. No program and no ownership here: only the contents.

  A transfer lands the piece in row 0 of an 8 × 3200 staging array (`InRow`: position (0, t) of that row holds element
  (0, pos + t) of the transposed argument, `pos` the piece's first column). A loop of 200 trips copies that row, 16 lanes
  per trip, into the first 3200 elements of a flat staging array of 25600: trip `j` reads the 1 × 16 window at columns
  [16 j, 16 j + 16) of row 0 and writes it, flattened, at elements [16 j, 16 j + 16). After `j` trips the first 16 j
  elements of the flat array are the first 16 j elements of the row (`Lanes`); a trip extends the prefix by 16
  (`lanes_step`: an element below 16 j is outside the window written and keeps its value, an element of the window reads
  the lane written there, which is the row's element at the same column). A second transfer writes the first 3200
  elements of the flat array to the piece of the result at the same `pos`; so every element of that piece of the result
  holds the element of row 12 of the transposed argument at its own position (`out_written`): the composite of the three
  index maps t ↦ (0, pos + t) ↦ (0, t) ↦ t ↦ pos + t is the identity on positions of the row.
-/
import proofs.«206869_g37898791420194_cont_8to1_b_558_20_alg».proof.Proof.TileK12Defs
import proofs.«206869_g37898791420194_cont_8to1_b_558_20_alg».proof.Proof.Spec
import Idealize.ShloMosaic.Lib.WritesUnit
import Idealize.ShloMosaic.Lib.ValueLayout

noncomputable section

namespace Cert.Proof.TileVal12

open Cert.Proof.TileK12 Cert.KernelIdeal Cert.KernelIdeal.Gen
open Idealize.ShloMosaic Idealize.ShloMosaic.ValueIdx

variable {F : FTy → Type} [FloatOps F]
variable (d : Dev nD) (L : grid12.Coords)
variable (fx : Buf (Elt F) ((Memref.whole main_v0_scv : Memref sig .scVector .hbm S22x1600000 .f32).view.loc (thr d L)))

abbrev rowRect : Rect S8x3200 := Rect.unit (s := S8x3200) ![0, 0] S1x3200.size inb_S8x3200_S1x3200_0_0

/-- row 0 of the staging array is piece n of the argument row -/
def InRow (a : Memref sig .scVector .vmem S8x3200 .f32) (ga : Buf (Elt F) (a.view.loc (thr d L))) (n : ℕ) : Prop :=
  ∀ y : S1x3200.Idx, a.view.read (Elt F) ga (rowRect.emb y) = (inM L n).view.read (Elt F) fx y

theorem inRow_fetch (a : Memref sig .scVector .vmem S8x3200 .f32) (gold : Buf (Elt F) (a.view.loc (thr d L)))
    (w : S1x3200.Idx → Elt F .f32) (n : ℕ) (hw : ∀ y, w y = (inM L n).view.read (Elt F) fx y) :
    InRow d L fx a (a.view.writes (Elt F) gold [⟨rowRect, w⟩]) n :=
  fun y => (View.read_writes_cons_emb a.view gold rowRect w [] y).trans (hw y)

def Lanes (a : Memref sig .scVector .vmem S8x3200 .f32) (b : Memref sig .scVector .vmem S25600 .f32)
    (ga : Buf (Elt F) (a.view.loc (thr d L))) (gb : Buf (Elt F) (b.view.loc (thr d L))) (j : ℕ) : Prop :=
  ∀ (r : ℕ) (hr : r < 3200), r < 16 * j →
    b.view.read (Elt F) gb (ix1 (⟨r, by omega⟩ : Fin 25600)) = a.view.read (Elt F) ga (ix2 (0 : Fin 8) (⟨r, hr⟩ : Fin 3200))

theorem lanes_zero (a : Memref sig .scVector .vmem S8x3200 .f32) (b : Memref sig .scVector .vmem S25600 .f32)
    (ga : Buf (Elt F) (a.view.loc (thr d L))) (gb : Buf (Elt F) (b.view.loc (thr d L))) : Lanes d L a b ga gb 0 := by
  intro r hr h; omega

/-- The 1 × 16 window at column `c` of the staging array, read at lane `t`, is element `(0, c + t)`. -/
theorem idx_window {off : Fin 2 → ℕ} {c : ℕ} (h : off = ![0, c]) (p : ∀ a', off a' + S1x16.size a' ≤ S8x3200.size a')
    (t : Fin 16) (hr : c + t.val < 3200) :
    (Rect.unit (s := S8x3200) off S1x16.size p).toLoadRect.idx (ix2 (0 : Fin 1) t) = ix2 (0 : Fin 8) (⟨c + t.val, hr⟩ : Fin 3200) := by
  subst h
  funext a'; apply Fin.ext
  rw [LoadRect.idx_apply]
  match a' with
  | ⟨0, _⟩ => show 0 + 1 * 0 = 0; omega
  | ⟨1, _⟩ => show c + 1 * t.val = c + t.val; omega

/-- One trip of a lane-copy loop, the offsets given by their closed forms. -/
theorem lanes_step_core (a : Memref sig .scVector .vmem S8x3200 .f32) (b : Memref sig .scVector .vmem S25600 .f32)
    (ga : Buf (Elt F) (a.view.loc (thr d L))) (gb : Buf (Elt F) (b.view.loc (thr d L)))
    (t : ℕ) {off3 : Fin 2 → ℕ} {off4 : Fin 1 → ℕ} (h3 : off3 = ![0, 16 * t]) (h4 : off4 = ![16 * t])
    (p3 : ∀ a', off3 a' + S1x16.size a' ≤ S8x3200.size a') (p4 : ∀ a', off4 a' + S16.size a' ≤ S25600.size a')
    (h : Lanes d L a b ga gb t) :
    Lanes d L a b ga (b.view.writes (Elt F) gb [⟨Rect.unit (s := S25600) off4 S16.size p4,
      shapeCast S16 (a.view.readAt (Elt F) (Rect.unit (s := S8x3200) off3 S1x16.size p3).toLoadRect ga) shapeCasts_S1x16_S16⟩]) (t + 1) := by
  intro r hr hlt
  by_cases hlo : r < 16 * t
  · refine (View.read_writes_cons_unit_of_not_mem b.view gb p4 _ [] _ h4 (0 : Fin 1) (Or.inl ?_)).trans (h r hr hlo)
    show r < 16 * t
    exact hlo
  · have hx : r - 16 * t < 16 := by omega
    refine (View.read_writes_cons_unit_of_mem b.view gb p4 _ [] _ (ix1 (⟨r - 16 * t, hx⟩ : Fin 16)) h4 ?_).trans ?_
    · intro a'
      match a' with
      | ⟨0, _⟩ => show r = 16 * t + (r - 16 * t); omega
    · rw [shapeCast_1a_a_apply, View.readAt_apply, idx_window h3 p3 ⟨r - 16 * t, hx⟩ (by show 16 * t + (r - 16 * t) < 3200; omega)]
      congr 2
      apply Fin.ext
      show 16 * t + (r - 16 * t) = r
      omega

theorem lanes_step (a : Memref sig .scVector .vmem S8x3200 .f32) (b : Memref sig .scVector .vmem S25600 .f32)
    (ga : Buf (Elt F) (a.view.loc (thr d L))) (gb : Buf (Elt F) (b.view.loc (thr d L)))
    (j : Fin k12_t2_loop.trips) (p3 : ∀ a', (k12_off3 j) a' + S1x16.size a' ≤ S8x3200.size a')
    (p4 : ∀ a', (k12_off4 j) a' + S16.size a' ≤ S25600.size a') (h : Lanes d L a b ga gb j.val) :
    Lanes d L a b ga (b.view.writes (Elt F) gb [⟨Rect.unit (s := S25600) (k12_off4 j) S16.size p4,
      k12_pay1 (a.view.readAt (Elt F) (Rect.unit (s := S8x3200) (k12_off3 j) S1x16.size p3).toLoadRect ga)⟩]) (j.val + 1) :=
  lanes_step_core d L a b ga gb j.val (k12_off3_eq j) (k12_off4_eq j) p3 p4 h

theorem lanes_step' (a : Memref sig .scVector .vmem S8x3200 .f32) (b : Memref sig .scVector .vmem S25600 .f32)
    (ga : Buf (Elt F) (a.view.loc (thr d L))) (gb : Buf (Elt F) (b.view.loc (thr d L)))
    (j : Fin k12_t3_loop.trips) (p3 : ∀ a', (k12_off8 j) a' + S1x16.size a' ≤ S8x3200.size a')
    (p4 : ∀ a', (k12_off9 j) a' + S16.size a' ≤ S25600.size a') (h : Lanes d L a b ga gb j.val) :
    Lanes d L a b ga (b.view.writes (Elt F) gb [⟨Rect.unit (s := S25600) (k12_off9 j) S16.size p4,
      k12_pay2 (a.view.readAt (Elt F) (Rect.unit (s := S8x3200) (k12_off8 j) S1x16.size p3).toLoadRect ga)⟩]) (j.val + 1) :=
  lanes_step_core d L a b ga gb j.val (k12_off8_eq j) (k12_off9_eq j) p3 p4 h

/-- Position `y` of the write-out window of the flat staging array is its element `y 0`. -/
theorem stg_emb (y : S3200.Idx) (hy : (y 0).val < 25600) :
    (Rect.unit (s := S25600) ![0] S3200.size inb_S25600_S3200_0).emb y = ix1 (⟨(y 0).val, hy⟩ : Fin 25600) := by
  funext a'; apply Fin.ext
  match a' with
  | ⟨0, _⟩ => show 0 + 1 * (y 0).val = (y 0).val; omega

/-- Position `(0, t)` of row 0 of the staging array is its element `(0, t)`. -/
theorem row_emb (t : Fin 3200) : rowRect.emb (ix2 (0 : Fin 1) t) = ix2 (0 : Fin 8) t := by
  funext a'; apply Fin.ext
  match a' with
  | ⟨0, _⟩ => show 0 + 1 * 0 = 0; omega
  | ⟨1, _⟩ => show 0 + 1 * t.val = t.val; omega

/-- Position `(0, t)` of piece `n` of the argument row is element `(0, pos + t)` of the transposed argument;
    position `y` of piece `n` of the result is element `pos + y 0` of the result. -/
theorem in_emb (n : ℕ) (t : Fin 3200) (h : pos L n + t.val < 1600000) :
    (inM L n).view.emb (ix2 (0 : Fin 1) t) = ix2 (12 : Fin 22) (⟨pos L n + t.val, h⟩ : Fin 1600000) := by
  funext a'; apply Fin.ext
  match a' with
  | ⟨0, _⟩ => show 12 + 1 * 0 = 12; omega
  | ⟨1, _⟩ => show pos L n + 1 * t.val = pos L n + t.val; omega

theorem out_emb (n : ℕ) (y : S3200.Idx) (h : pos L n + (y 0).val < 1600000) :
    (outM L n).view.emb y = ix1 (⟨pos L n + (y 0).val, h⟩ : Fin 1600000) := by
  funext a'; apply Fin.ext
  match a' with
  | ⟨0, _⟩ => show pos L n + 1 * (y 0).val = pos L n + (y 0).val; omega

/-- Both lane-copy loops run 200 trips: 200 · 16 = 3200, the whole row. -/
theorem trips2 : k12_t2_loop.trips = 200 := by decide
theorem trips3 : k12_t3_loop.trips = 200 := by decide

/-- After all its trips a lane-copy loop has copied the whole row. -/
theorem lanes_all (a : Memref sig .scVector .vmem S8x3200 .f32) (b : Memref sig .scVector .vmem S25600 .f32)
    (ga : Buf (Elt F) (a.view.loc (thr d L))) (gb : Buf (Elt F) (b.view.loc (thr d L)))
    (h : Lanes d L a b ga gb k12_t2_loop.trips) : Lanes d L a b ga gb 200 := trips2 ▸ h
theorem lanes_all' (a : Memref sig .scVector .vmem S8x3200 .f32) (b : Memref sig .scVector .vmem S25600 .f32)
    (ga : Buf (Elt F) (a.view.loc (thr d L))) (gb : Buf (Elt F) (b.view.loc (thr d L)))
    (h : Lanes d L a b ga gb k12_t3_loop.trips) : Lanes d L a b ga gb 200 := trips3 ▸ h

/-- The write-out of a piece: the first 3200 elements of the flat staging array, which the 200 lane copies filled from
    row 0 of the staging array, which the fetch filled from piece `n` of row 12 of the transposed argument, land at
    piece `n` of the result, at the same positions of the row. -/
theorem out_written (a : Memref sig .scVector .vmem S8x3200 .f32) (b : Memref sig .scVector .vmem S25600 .f32) (n : ℕ)
    (ga : Buf (Elt F) (a.view.loc (thr d L))) (gb : Buf (Elt F) (b.view.loc (thr d L)))
    (f0 : Buf (Elt F) ((outM L n).view.loc (thr d L))) (w : S3200.Idx → Elt F .f32)
    (hw : ∀ y, w y = (stg b).view.read (Elt F) gb y) (hl : Lanes d L a b ga gb 200) (hr : InRow d L fx a ga n) (hv : valid L n) :
    ∀ i ∈ (outM L n).view.set, ((outM L n).view.writes (Elt F) f0 [⟨Rect.whole _, w⟩]) i = Cert.Spec.row 12 fx i := by
  intro i hi
  obtain ⟨y, -, rfl⟩ := Finset.mem_map.mp hi
  have hy : (y 0).val < 3200 := (y 0).isLt
  have hp : pos L n + (y 0).val < 1600000 := by unfold pos; omega
  have e1 : (outM L n).view.writes (Elt F) f0 [⟨Rect.whole _, w⟩] ((outM L n).view.emb y) = w y := by
    have h := View.read_writes_cons_emb (outM L n).view f0 (Rect.whole _) w [] y
    rw [Rect.emb_whole_apply] at h
    exact (cast_eq _ _).symm.trans ((View.read_apply _ _).symm.trans h)
  have e2 : (stg b).view.read (Elt F) gb y = b.view.read (Elt F) gb (ix1 (⟨(y 0).val, by omega⟩ : Fin 25600)) :=
    congrArg (b.view.read (Elt F) gb) (stg_emb y (by omega))
  have e3 : a.view.read (Elt F) ga (ix2 (0 : Fin 8) (⟨(y 0).val, hy⟩ : Fin 3200))
      = (inM L n).view.read (Elt F) fx (ix2 (0 : Fin 1) (⟨(y 0).val, hy⟩ : Fin 3200)) :=
    (congrArg (a.view.read (Elt F) ga) (row_emb ⟨(y 0).val, hy⟩).symm).trans (hr _)
  have e4 : (inM L n).view.read (Elt F) fx (ix2 (0 : Fin 1) (⟨(y 0).val, hy⟩ : Fin 3200))
      = fx (ix2 (12 : Fin 22) (⟨pos L n + (y 0).val, hp⟩ : Fin 1600000)) :=
    ((View.read_apply _ _).trans (cast_eq _ _)).trans (congrArg fx (in_emb L n ⟨(y 0).val, hy⟩ hp))
  have e5 : Cert.Spec.row 12 fx ((outM L n).view.emb y) = fx (ix2 (12 : Fin 22) (⟨pos L n + (y 0).val, hp⟩ : Fin 1600000)) :=
    (congrArg (Cert.Spec.row 12 fx) (out_emb L n y hp)).trans (Cert.Spec.row_apply 12 fx _)
  exact e1.trans ((hw y).trans (e2.trans ((hl _ hy (by omega)).trans (e3.trans (e4.trans e5.symm)))))

end Cert.Proof.TileVal12

end
-- ==== Proof.TileK12.lean ====
/-
  One vector subcore's task of copy kernel 12 (counting from 0), run symbolically: the two fetch slots and two write-out slots
  between trips of the main loop (what each transfer in flight will hand back, and what the staging buffers hold), the
  invariant of the main loop and of the two lane-copy loops, and the task's run — from the tile's pieces of row 12 of
  the transposed argument and of the result to the same pieces with the result holding the row's elements.
-/
import proofs.«206869_g37898791420194_cont_8to1_b_558_20_alg».proof.Proof.TileK12Defs
import proofs.«206869_g37898791420194_cont_8to1_b_558_20_alg».proof.Proof.TileVal12
noncomputable section

namespace Cert.Proof.TileK12

open Cert.KernelIdeal Cert.KernelIdeal.Gen Cert.Proof.TileVal12
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 22) (Elt F) ℕ UU ℕ
local notation "xtW" => (Memref.whole Cert.KernelIdeal.main_v0_scv : Memref Cert.KernelIdeal.sig Kind.scVector Space.hbm Cert.KernelIdeal.S22x1600000 EltTy.f32)
local notation "oW" => (Memref.whole Cert.KernelIdeal.main_v13_scv : Memref Cert.KernelIdeal.sig Kind.scVector Space.hbm Cert.KernelIdeal.S1600000 EltTy.f32)
local notation "a4" => (Memref.whole Cert.KernelIdeal.cc12_scratch0 : Memref Cert.KernelIdeal.sig Kind.scVector Space.vmem Cert.KernelIdeal.S8x3200 EltTy.f32)
local notation "a5" => (Memref.whole Cert.KernelIdeal.cc12_scratch1 : Memref Cert.KernelIdeal.sig Kind.scVector Space.vmem Cert.KernelIdeal.S8x3200 EltTy.f32)
local notation "a6" => (Memref.whole Cert.KernelIdeal.cc12_scratch2 : Memref Cert.KernelIdeal.sig Kind.scVector Space.vmem Cert.KernelIdeal.S25600 EltTy.f32)
local notation "a7" => (Memref.whole Cert.KernelIdeal.cc12_scratch3 : Memref Cert.KernelIdeal.sig Kind.scVector Space.vmem Cert.KernelIdeal.S25600 EltTy.f32)

variable [FloatOps F]

section Tile

variable (d : Dev nD) (L : grid12.Coords)
variable (O : CellTallies nD τ sig (HIx 22)) (W : Waits sig (HIx 22))
variable (fx : Buf (Elt F) ((xtW).view.loc (thr d L)))

/-- Piece `n` of the result at its final contents. -/
abbrev oqPiece (n : ℕ) : sProp 𝕄 := (outM L n).view.loc (thr d L) ↦[(outM L n).view.set]{fullShare} (Cert.Spec.row 12 fx)
theorem oQ_pos {n : ℕ} (v : valid L n) : oQ d L fx n = oqPiece d L fx n := if_pos v
theorem oQ_neg {n : ℕ} (v : ¬ valid L n) : oQ d L fx n = iprop(emp) := if_neg v

/-- A fetch slot, remembering that the staging row it will hand back holds the piece. -/
def inSlotV (a : Memref sig .scVector .vmem S8x3200 .f32) (sm : DmaSem sig) (n : ℕ) : sProp 𝕄 :=
  if valid L n then
    iprop(∃ g, ⌜InRow d L fx a g n⌝ ∗ Transfers.Flight countersEmb (thr d L) (SemLoc.dma sm) (default : HIx 22) NN
      iprop((a.view.loc (thr d L) ↦{fullShare} g) ∗ xtPiece d L fx n))
  else iprop((∃ g, a.view.loc (thr d L) ↦{fullShare} g) ∗ semVal (thr d L, SemLoc.dma sm) 0)

/-- A write-out slot: the piece in flight will come back holding the row's elements. -/
def outSlotV (a : Memref sig .scVector .vmem S25600 .f32) (sm : DmaSem sig) (m : ℕ) : sProp 𝕄 :=
  if 2 ≤ m ∧ valid L (m - 2) then
    iprop(∃ g, Transfers.Flight countersEmb (thr d L) (SemLoc.dma sm) (default : HIx 22) NN
        iprop(oqPiece d L fx (m - 2) ∗ ((stg a).view.loc (thr d L) ↦[(stg a).view.set]{fullShare} g))
      ∗ (a.view.loc (thr d L) ↦[Finset.univ \ (stg a).view.set]{fullShare} g))
  else iprop((∃ g, a.view.loc (thr d L) ↦{fullShare} g) ∗ semVal (thr d L, SemLoc.dma sm) 0)

theorem inSlotV_pos {a : Memref sig .scVector .vmem S8x3200 .f32} {sm : DmaSem sig} {n : ℕ} (v : valid L n) :
    inSlotV d L fx a sm n = iprop(∃ g, ⌜InRow d L fx a g n⌝ ∗ Transfers.Flight countersEmb (thr d L) (SemLoc.dma sm) (default : HIx 22) NN
      iprop((a.view.loc (thr d L) ↦{fullShare} g) ∗ xtPiece d L fx n)) := by unfold inSlotV; rw [if_pos v]
theorem inSlotV_neg {a : Memref sig .scVector .vmem S8x3200 .f32} {sm : DmaSem sig} {n : ℕ} (v : ¬ valid L n) :
    inSlotV d L fx a sm n = iprop((∃ g, a.view.loc (thr d L) ↦{fullShare} g) ∗ semVal (thr d L, SemLoc.dma sm) 0) := by
  unfold inSlotV; rw [if_neg v]
theorem outSlotV_pos {a : Memref sig .scVector .vmem S25600 .f32} {sm : DmaSem sig} {m : ℕ} (h : 2 ≤ m ∧ valid L (m - 2)) :
    outSlotV d L fx a sm m = iprop(∃ g, Transfers.Flight countersEmb (thr d L) (SemLoc.dma sm) (default : HIx 22) NN
        iprop(oqPiece d L fx (m - 2) ∗ ((stg a).view.loc (thr d L) ↦[(stg a).view.set]{fullShare} g))
      ∗ (a.view.loc (thr d L) ↦[Finset.univ \ (stg a).view.set]{fullShare} g)) := by unfold outSlotV; rw [if_pos h]
theorem outSlotV_neg {a : Memref sig .scVector .vmem S25600 .f32} {sm : DmaSem sig} {m : ℕ} (h : ¬ (2 ≤ m ∧ valid L (m - 2))) :
    outSlotV d L fx a sm m = iprop((∃ g, a.view.loc (thr d L) ↦{fullShare} g) ∗ semVal (thr d L, SemLoc.dma sm) 0) := by
  unfold outSlotV; rw [if_neg h]

/-- A fetch just issued: the staging row will hold what the transfer reads, which is the piece. -/
theorem fl_inV {off : Fin 2 → ℕ} {n : ℕ} (h : off = ![12, pos L n]) (p : ∀ a, off a + S1x3200.size a ≤ S22x1600000.size a) (v : valid L n)
    (a : Memref sig .scVector .vmem S8x3200 .f32) (sm : DmaSem sig) :
    (iprop(∃ (gold : Buf (Elt F) (a.view.loc (thr d L))) (w : S1x3200.Idx → Elt F .f32),
        ⌜∀ y, w y = ((xtW).slice (Rect.unit (s := S22x1600000) off S1x3200.size p) (fun _ => rfl)).view.read (Elt F) fx y⌝
        ∗ Transfers.Flight countersEmb (thr d L) (SemLoc.dma sm) (default : HIx 22) NN
          iprop((a.view.loc (thr d L) ↦{fullShare} a.view.writes (Elt F) gold [⟨rowRect, w⟩])
            ∗ (((xtW).slice (Rect.unit (s := S22x1600000) off S1x3200.size p) (fun _ => rfl)).view.loc (thr d L)
                ↦[((xtW).slice (Rect.unit (s := S22x1600000) off S1x3200.size p) (fun _ => rfl)).view.set]{fullShare} fx))) : sProp 𝕄)
      ⊢ inSlotV d L fx a sm n := by
  subst h
  rw [inSlotV_pos d L fx v]
  iintro ⟨%gold, %w, %hw, H⟩
  iexists _
  isplitr
  · ipureintro; exact inRow_fetch d L fx a gold w n hw
  · iexact H

set_option maxHeartbeats 4000000 in
/-- A write-out just issued from a flat staging buffer whose first 3200 elements are the staging row, itself piece
    `n` of the argument row: the piece of the result will hold the row's elements. -/
theorem fl_outV {off : Fin 1 → ℕ} {n : ℕ} (h : off = ![pos L n]) (p : ∀ a, off a + S3200.size a ≤ S1600000.size a) (v : valid L n)
    (ar : Memref sig .scVector .vmem S8x3200 .f32) (a : Memref sig .scVector .vmem S25600 .f32) (sm : DmaSem sig)
    (f0 : Buf (Elt F) ((oW).view.loc (thr d L))) (ga : Buf (Elt F) (ar.view.loc (thr d L))) (gb : Buf (Elt F) (a.view.loc (thr d L)))
    (hl : Lanes d L ar a ga gb 200) (hr : InRow d L fx ar ga n) :
    (iprop(∃ (w : S3200.Idx → Elt F .f32),
        ⌜∀ y, w y = (stg a).view.read (Elt F) gb y⌝
        ∗ Transfers.Flight countersEmb (thr d L) (SemLoc.dma sm) (default : HIx 22) NN
          iprop((((oW).slice (Rect.unit (s := S1600000) off S3200.size p) (fun _ => rfl)).view.loc (thr d L)
                ↦[((oW).slice (Rect.unit (s := S1600000) off S3200.size p) (fun _ => rfl)).view.set]{fullShare}
                  (((oW).slice (Rect.unit (s := S1600000) off S3200.size p) (fun _ => rfl)).view.writes (Elt F) f0 [⟨Rect.whole _, w⟩]))
            ∗ ((stg a).view.loc (thr d L) ↦[(stg a).view.set]{fullShare} gb))
        ∗ (a.view.loc (thr d L) ↦[Finset.univ \ (stg a).view.set]{fullShare} gb)) : sProp 𝕄)
      ⊢ outSlotV d L fx a sm (n + 2) := by
  subst h
  rw [outSlotV_pos d L fx (m := n + 2) ⟨by omega, by simpa using v⟩]
  iintro ⟨%w, %hw, H, R⟩
  have hD : (iprop(((outM L n).view.loc (thr d L) ↦[(outM L n).view.set]{fullShare} ((outM L n).view.writes (Elt F) f0 [⟨Rect.whole _, w⟩]))
          ∗ ((stg a).view.loc (thr d L) ↦[(stg a).view.set]{fullShare} gb)) : sProp 𝕄)
      ⊢ iprop(oqPiece d L fx (n + 2 - 2) ∗ ((stg a).view.loc (thr d L) ↦[(stg a).view.set]{fullShare} gb)) := by
    rw [Nat.add_sub_cancel]
    have e : (((outM L n).view.loc (thr d L) ↦[(outM L n).view.set]{fullShare} ((outM L n).view.writes (Elt F) f0 [⟨Rect.whole _, w⟩])) : sProp 𝕄)
        = oqPiece d L fx n := pointsTo_congr (out_written d L fx ar a n ga gb f0 w hw hl hr v)
    iintro ⟨H1, H2⟩
    isplitl [H1]
    · iapply (Entails.of_eq e); iexact H1
    · iexact H2
  iexists gb
  isplitl [H]
  · iapply (Transfers.Flight_mono countersEmb (thr d L) hD); iexact H
  · iexact R

/-- The result pieces outside the slots before trip `t`: those already written hold the row, the others some contents. -/
def oMix (t n : ℕ) : sProp 𝕄 := if n + 2 < 2 * t then oQ d L fx n else oP (F := F) d L n
theorem oMix_lt {t n : ℕ} (h : n + 2 < 2 * t) : oMix d L fx t n = oQ d L fx n := if_pos h
theorem oMix_ge {t n : ℕ} (h : ¬ n + 2 < 2 * t) : oMix d L fx t n = oP (F := F) d L n := if_neg h
theorem oMix_core (k : ℕ) : bigSep (oCore k) (oMix d L fx k) = bigSep (oCore k) (oMix d L fx (k + 1)) :=
  bigSep_congr fun n hn => by
    have hn' : n + 2 ≠ 2 * k ∧ n + 2 ≠ 2 * k + 1 ∧ n ≠ 2 * k ∧ n ≠ 2 * k + 1 := by
      simp only [oCore, Finset.mem_filter, Finset.mem_range] at hn; exact hn.2
    by_cases h : n + 2 < 2 * k
    · rw [oMix_lt d L fx h, oMix_lt d L fx (by omega)]
    · rw [oMix_ge d L fx h, oMix_ge d L fx (by omega)]
theorem oMix_zero : bigSep (oSet 0) (oMix d L fx 0) = bigSep (Finset.range 18) (oP (F := F) d L) := by
  rw [oSet_zero]; exact bigSep_congr fun n _ => oMix_ge d L fx (by omega)
theorem oMix_end : bigSep (oSet 8) (oMix d L fx 8) = bigSep (oSet 8) (oQ d L fx) :=
  bigSep_congr fun n hn => by
    have hn' : n < 18 ∧ n + 2 ≠ 16 ∧ n + 2 ≠ 17 := by simpa only [oSet, Finset.mem_filter, Finset.mem_range] using hn
    by_cases h : n + 2 < 2 * 8
    · exact oMix_lt d L fx h
    · rw [oMix_ge d L fx h, oP_neg (F := F) d L (by unfold valid; omega), oQ_neg d L fx (by unfold valid; omega)]

/-- The lane-copy loops: before trip `j` the first 16·j elements of the flat staging buffer are the staging row's. -/
def laneV0 (g4 : Buf (Elt F) ((a4).view.loc (thr d L))) (j : ℕ) (_ : PUnit) : sProp 𝕄 :=
  iprop(((a4).view.loc (thr d L) ↦{fullShare} g4) ∗ (∃ g, ((a6).view.loc (thr d L) ↦{fullShare} g) ∗ ⌜Lanes d L a4 a6 g4 g j⌝))
def laneV1 (g5 : Buf (Elt F) ((a5).view.loc (thr d L))) (j : ℕ) (_ : PUnit) : sProp 𝕄 :=
  iprop(((a5).view.loc (thr d L) ↦{fullShare} g5) ∗ (∃ g, ((a7).view.loc (thr d L) ↦{fullShare} g) ∗ ⌜Lanes d L a5 a7 g5 g j⌝))

def invV (t : ℕ) (_ : PUnit) : sProp 𝕄 :=
  iprop(Transfers.MayWaits (thr d L) (none : HIx 22) O
    ∗ (∃ W', ⌜∀ p ∈ W', p ∈ W ∨ p.2 = none⌝ ∗ owes (thr d L) O W')
    ∗ bigSep (xSet t) (xP d L fx) ∗ bigSep (oSet t) (oMix d L fx t)
    ∗ inSlotV d L fx a4 cc12_scratch4.sem (2 * t) ∗ outSlotV d L fx a6 cc12_scratch6.sem (2 * t)
    ∗ inSlotV d L fx a5 cc12_scratch5.sem (2 * t + 1) ∗ outSlotV d L fx a7 cc12_scratch7.sem (2 * t + 1))

/-- After the last trip nothing of the argument row is in a slot: the tile holds all its pieces. -/
theorem xRange_end : bigSep (xSet 8) (xP d L fx) ⊢ bigSep (Finset.range 18) (xP d L fx) := by
  rw [two_out (s := Finset.range 18) (a := 16) (b := 17) (by decide) (by decide) (by decide),
    show ((Finset.range 18).erase 16).erase 17 = xSet 8 by decide]
  iintro H
  isplitr; · iapply (Entails.of_eq (xP_neg d L fx (n := 16) (by unfold valid; omega)).symm); iempintro
  isplitr; · iapply (Entails.of_eq (xP_neg d L fx (n := 17) (by unfold valid; omega)).symm); iempintro
  iexact H
omit [FloatOps F] in
theorem oRange_end (Φ : ℕ → sProp 𝕄) : bigSep (Finset.range 18) Φ = iprop(Φ 14 ∗ Φ 15 ∗ bigSep (oSet 8) Φ) := by
  rw [two_out (s := Finset.range 18) (a := 14) (b := 15) (by decide) (by decide) (by decide),
    show ((Finset.range 18).erase 14).erase 15 = oSet 8 by decide]

/-- What the run starts from and ends with, beside an untouched rest `R`. -/
def runPre (R : sProp 𝕄) : sProp 𝕄 :=
    iprop(Transfers.MayWaits (thr d L) (none : HIx 22) O ∗ owes (thr d L) O W
        ∗ bigSep (Finset.range 18) (xP d L fx) ∗ bigSep (Finset.range 18) (oP (F := F) d L)
        ∗ (∃ g, (a4).view.loc (thr d L) ↦{fullShare} g) ∗ (∃ g, (a5).view.loc (thr d L) ↦{fullShare} g)
        ∗ (∃ g, (a6).view.loc (thr d L) ↦{fullShare} g) ∗ (∃ g, (a7).view.loc (thr d L) ↦{fullShare} g)
        ∗ semVal (thr d L, SemLoc.dma cc12_scratch4.sem) 0 ∗ semVal (thr d L, SemLoc.dma cc12_scratch5.sem) 0
        ∗ semVal (thr d L, SemLoc.dma cc12_scratch6.sem) 0 ∗ semVal (thr d L, SemLoc.dma cc12_scratch7.sem) 0 ∗ R)
def runPost (R : sProp 𝕄) : sProp 𝕄 :=
    iprop(bigSep (Finset.range 18) (xP d L fx) ∗ bigSep (Finset.range 18) (oQ d L fx)
            ∗ (∃ g, (a4).view.loc (thr d L) ↦{fullShare} g) ∗ (∃ g, (a5).view.loc (thr d L) ↦{fullShare} g)
            ∗ (∃ g, (a6).view.loc (thr d L) ↦{fullShare} g) ∗ (∃ g, (a7).view.loc (thr d L) ↦{fullShare} g)
            ∗ semVal (thr d L, SemLoc.dma cc12_scratch4.sem) 0 ∗ semVal (thr d L, SemLoc.dma cc12_scratch5.sem) 0
            ∗ semVal (thr d L, SemLoc.dma cc12_scratch6.sem) 0 ∗ semVal (thr d L, SemLoc.dma cc12_scratch7.sem) 0
            ∗ (∃ W', ⌜∀ p ∈ W', p ∈ W ∨ p.2 = none⌝ ∗ owes (thr d L) O W') ∗ R)

set_option maxHeartbeats 16000000 in
/-- The task's run: from its pieces of the argument row and of the result, the four staging buffers and the four
    semaphores at zero, to the same with every piece of the result holding the row's elements. -/
theorem tile_run (R : sProp 𝕄) :
    runPre d L O W fx R
      ⊢ wp frame (wpE (defs₀ (F := F)) 𝒱₀ (thr d L) none) Set.univ
          (cc12_sc_group L xtW (Memref.isWhole_whole _) oW (Memref.isWhole_whole _) a4 (Memref.isWhole_whole _) a5 (Memref.isWhole_whole _)
            a6 (Memref.isWhole_whole _) a7 (Memref.isWhole_whole _) cc12_scratch4 cc12_scratch5 cc12_scratch6 cc12_scratch7)
          fun _ => runPost d L O W fx R := by
  unfold runPre runPost
  have v0 : valid L 0 := Or.inl (by omega)
  have v1 : valid L 1 := Or.inl (by omega)
  have k12_h7 : k12_cond7 L = 1#1 := cond7_iff L
  iintro ⟨#Hmw, HO, HX, HOut, ⟨%g4, H4⟩, ⟨%g5, H5⟩, ⟨%g6, H6⟩, ⟨%g7, H7⟩, Hs8, Hs9, Hs10, Hs11, HR⟩
  ihave HX := (Entails.of_eq (xRange_split d L fx v0 v1)) $$ HX
  icases HX with ⟨X0, X1, HX⟩
  ihave X0 := (Entails.of_eq (in_congr d L (off_in0 L v0).symm (in_inb L _) (k12_off1_inb L 0) fx)) $$ X0
  ihave X1 := (Entails.of_eq (in_congr d L (off_in1 L v1).symm (in_inb L _) (k12_off1_inb L 1) fx)) $$ X1
  sl_unfold [cc12_sc_group]
  sl_exec
  ihave S8 := (fl_inV d L fx (off_in0 L v0) (k12_off1_inb L 0) v0 a4 cc12_scratch4.sem) $$ [Hs8]
  · iexists _, _
    isplitr
    rotate_left
    · iexact Hs8
    ipureintro; intro y; rfl
  ihave S9 := (fl_inV d L fx (off_in1 L v1) (k12_off1_inb L 1) v1 a5 cc12_scratch5.sem) $$ [Hs9]
  · iexists _, _
    isplitr
    rotate_left
    · iexact Hs9
    ipureintro; intro y; rfl
  sl_for (invV d L O W fx) $$ [HO HX HOut S8 S9 H6 H7 Hs10 Hs11]
  case region =>
    intro (k : Fin k12_t1_loop.trips) acc
    have hk : k.val < 8 := Nat.lt_of_lt_of_eq k.isLt trips1
    unfold invV
    iintro ⟨#Hmw, ⟨%W', %hW', HO⟩, HX, HOut, S8, S10, S9, S11⟩
    by_cases hk1 : 1 ≤ k.val
    · by_cases v3 : valid L (2 * k.val + 3)
      · -- the generic trip: both drains, both pieces worked, both next fetches issued
        have hk6 : k.val ≤ 6 := by unfold valid at v3; omega
        have k12_h1 : k12_cond1 k = 1#1 := (cond1_iff k).mpr (by omega)
        have k12_h2 : k12_cond2 L k = 1#1 := cond2_iff L k
        have k12_h3 : k12_cond3 L k = 1#1 := (cond3_iff L k).mpr (by omega)
        have k12_h4 : k12_cond4 k = 1#1 := (cond4_iff k).mpr (by omega)
        have k12_h5 : k12_cond5 L k = 1#1 := (cond5_iff L k).mpr (by first | (unfold valid big at *; omega) | (unfold big at *; omega) | omega)
        have k12_h6 : k12_cond6 L k = 1#1 := (cond6_iff L k).mpr (by first | (unfold valid big at *; omega) | (unfold big at *; omega) | omega)
        have v0 : valid L (2 * k.val) := by unfold valid big at *; omega
        have v1 : valid L (2 * k.val + 1) := by unfold valid big at *; omega
        have v2 : valid L (2 * k.val + 2) := by unfold valid big at *; omega
        have v3' : valid L (2 * k.val + 3) := by unfold valid big at *; omega
        have hm0 : 2 ≤ 2 * k.val ∧ valid L (2 * k.val - 2) := ⟨by omega, by unfold valid big at *; omega⟩
        have hm1 : 2 ≤ 2 * k.val + 1 ∧ valid L (2 * k.val + 1 - 2) := ⟨by omega, by unfold valid big at *; omega⟩
        ihave S8 := (Entails.of_eq (inSlotV_pos d L fx v0)) $$ S8
        icases S8 with ⟨%g4, %hin4, F8⟩
        ihave S9 := (Entails.of_eq (inSlotV_pos d L fx v1)) $$ S9
        icases S9 with ⟨%g5, %hin5, F9⟩
        ihave S10 := (Entails.of_eq (outSlotV_pos d L fx hm0)) $$ S10
        icases S10 with ⟨%g6, F10, R6⟩
        ihave S11 := (Entails.of_eq (outSlotV_pos d L fx hm1)) $$ S11
        icases S11 with ⟨%g7, F11, R7⟩
        ihave HX := (Entails.of_eq (xSet_out (xP d L fx) k.val hk)) $$ HX
        icases HX with ⟨X2, X3, HX⟩
        ihave X2 := (Entails.of_eq (xP_pos d L fx v2)) $$ X2
        ihave X2 := (Entails.of_eq (in_congr d L (off_6 L k v2).symm (in_inb L _) (k12_off6_inb L k k12_h3) fx)) $$ X2
        ihave X3 := (Entails.of_eq (xP_pos d L fx v3')) $$ X3
        ihave X3 := (Entails.of_eq (in_congr d L (off_11 L k v3').symm (in_inb L _) (k12_off11_inb L k k12_h6) fx)) $$ X3
        ihave HOut := (Entails.of_eq (oSet_out (oMix d L fx k.val) k.val hk)) $$ HOut
        icases HOut with ⟨Y0, Y1, HOut⟩
        ihave Y0 := (Entails.of_eq ((oMix_ge d L fx (t := k.val) (n := 2 * k.val) (by omega)).trans (oP_pos (F := F) d L v0))) $$ Y0
        icases Y0 with ⟨%f0, Y0⟩
        ihave Y0 := (Entails.of_eq (out_congr d L (off_5 L k v0).symm (out_inb L _) (k12_off5_inb L k k12_h2) f0)) $$ Y0
        ihave Y1 := (Entails.of_eq ((oMix_ge d L fx (t := k.val) (n := 2 * k.val + 1) (by omega)).trans (oP_pos (F := F) d L v1))) $$ Y1
        icases Y1 with ⟨%f1, Y1⟩
        ihave Y1 := (Entails.of_eq (out_congr d L (off_10 L k v1).symm (out_inb L _) (k12_off10_inb L k k12_h5) f1)) $$ Y1
        sl_exec
        sl_for (laneV0 d L g4) $$ [F8_dst R6]
        case region =>
          intro (j : Fin k12_t2_loop.trips) _
          unfold laneV0
          iintro ⟨HA, %g, HB, %hl⟩
          sl_exec
          sl_step
          isplitl [HA]; · iexact HA
          iexists _; isplitl [HB]; · iexact HB
          ipureintro; exact lanes_step d L a4 a6 g4 g j _ _ hl
        · unfold laneV0
          isplitl [F8_dst]; · iexact F8_dst
          iexists _; isplitl [R6]; · iexact R6
          ipureintro; exact lanes_zero d L a4 a6 g4 _
        iintro %_ HI
        unfold laneV0
        icases HI with ⟨H4, %g6', H6, %hl6⟩
        have hl6 : Lanes d L a4 a6 g4 g6' 200 := Eq.mp (congrArg (Lanes d L a4 a6 g4 g6') trips2) hl6
        sl_exec
        sl_for (laneV1 d L g5) $$ [F9_dst R7]
        case region =>
          intro (j : Fin k12_t3_loop.trips) _
          unfold laneV1
          iintro ⟨HA, %g, HB, %hl⟩
          sl_exec
          sl_step
          isplitl [HA]; · iexact HA
          iexists _; isplitl [HB]; · iexact HB
          ipureintro; exact lanes_step' d L a5 a7 g5 g j _ _ hl
        · unfold laneV1
          isplitl [F9_dst]; · iexact F9_dst
          iexists _; isplitl [R7]; · iexact R7
          ipureintro; exact lanes_zero d L a5 a7 g5 _
        iintro %_ HI
        unfold laneV1
        icases HI with ⟨H5, %g7', H7, %hl7⟩
        have hl7 : Lanes d L a5 a7 g5 g7' 200 := Eq.mp (congrArg (Lanes d L a5 a7 g5 g7') trips3) hl7
        sl_exec
        sl_step
        isplitr; · iexact Hmw
        isplitl [HO]
        · iexists _; isplitr
          rotate_left
          · iexact HO
          ipureintro; intro p hp
          rcases Finset.mem_insert.mp hp with rfl | hp
          · exact .inr rfl
          rcases Finset.mem_insert.mp hp with rfl | hp
          · exact .inr rfl
          rcases Finset.mem_insert.mp hp with rfl | hp
          · exact .inr rfl
          rcases Finset.mem_insert.mp hp with rfl | hp
          · exact .inr rfl
          exact hW' p hp
        isplitl [HX F8_src F9_src]
        · iapply (Entails.of_eq (xSet_in (xP d L fx) k.val hk).symm)
          isplitl [F8_src]; · iapply (Entails.of_eq (xP_pos d L fx v0).symm); iexact F8_src
          isplitl [F9_src]; · iapply (Entails.of_eq (xP_pos d L fx v1).symm); iexact F9_src
          iexact HX
        isplitl [HOut F10_dst F11_dst]
        · iapply (Entails.of_eq (oSet_in (oMix d L fx (k.val + 1)) k.val hk (by omega)).symm)
          isplitl [F10_dst]; · iapply (Entails.of_eq ((oMix_lt d L fx (t := k.val + 1) (n := 2 * k.val - 2) (by omega)).trans (oQ_pos d L fx hm0.2)).symm); iexact F10_dst
          isplitl [F11_dst]
          · iapply (Entails.of_eq ((oMix_lt d L fx (t := k.val + 1) (n := 2 * k.val - 1) (by omega)).trans (oQ_pos d L fx (n := 2 * k.val - 1) (by have := hm1.2; rwa [show 2 * k.val + 1 - 2 = 2 * k.val - 1 by omega] at this))).symm)
            iapply (Entails.of_eq (congrArg (oqPiece d L fx) (show 2 * k.val + 1 - 2 = 2 * k.val - 1 by omega))); iexact F11_dst
          iapply (Entails.of_eq (oMix_core d L fx k.val)); iexact HOut
        isplitl [F8]
        · iapply (Entails.of_eq (congrArg (inSlotV d L fx a4 cc12_scratch4.sem) (show 2 * k.val + 2 = 2 * (k.val + 1) by ring)))
          iapply (fl_inV d L fx (off_6 L k v2) (k12_off6_inb L k k12_h3) v2 a4 cc12_scratch4.sem); iexists _, _
          isplitr
          rotate_left
          · iexact F8
          ipureintro; intro y; rfl
        isplitl [F10 H6]
        · iapply (Entails.of_eq (congrArg (outSlotV d L fx a6 cc12_scratch6.sem) (show 2 * k.val + 2 = 2 * (k.val + 1) by ring)))
          iapply (fl_outV d L fx (off_5 L k v0) (k12_off5_inb L k k12_h2) v0 a4 a6 cc12_scratch6.sem f0 g4 g6' hl6 hin4); iexists _
          isplitr
          rotate_left
          · isplitl [F10]; · iexact F10
            iexact H6
          ipureintro; intro y; rfl
        isplitl [F9]
        · iapply (Entails.of_eq (congrArg (inSlotV d L fx a5 cc12_scratch5.sem) (show 2 * k.val + 3 = 2 * (k.val + 1) + 1 by ring)))
          iapply (fl_inV d L fx (off_11 L k v3') (k12_off11_inb L k k12_h6) v3' a5 cc12_scratch5.sem); iexists _, _
          isplitr
          rotate_left
          · iexact F9
          ipureintro; intro y; rfl
        · iapply (Entails.of_eq (congrArg (outSlotV d L fx a7 cc12_scratch7.sem) (show 2 * k.val + 1 + 2 = 2 * (k.val + 1) + 1 by ring)))
          iapply (fl_outV d L fx (off_10 L k v1) (k12_off10_inb L k k12_h5) v1 a5 a7 cc12_scratch7.sem f1 g5 g7' hl7 hin5); iexists _
          isplitr
          rotate_left
          · isplitl [F11]; · iexact F11
            iexact H7
          ipureintro; intro y; rfl
      · by_cases h6 : k.val = 6
        · have hb : ¬ big L := fun hb => v3 (Or.inr ⟨by omega, hb⟩)
          -- trip 6 of a tile with fifteen pieces: no sixteenth piece to fetch
          have k12_h1 : k12_cond1 k = 1#1 := (cond1_iff k).mpr (by omega)
          have k12_h2 : k12_cond2 L k = 1#1 := cond2_iff L k
          have k12_h3 : k12_cond3 L k = 1#1 := (cond3_iff L k).mpr (by omega)
          have k12_h4 : k12_cond4 k = 1#1 := (cond4_iff k).mpr (by omega)
          have k12_h5 : k12_cond5 L k = 1#1 := (cond5_iff L k).mpr (by first | (unfold valid big at *; omega) | (unfold big at *; omega) | omega)
          have k12_h6 : ¬ k12_cond6 L k = 1#1 := fun h => absurd ((cond6_iff L k).mp h) (by first | (unfold valid big at *; omega) | (unfold big at *; omega) | omega)
          have v0 : valid L (2 * k.val) := by unfold valid big at *; omega
          have v1 : valid L (2 * k.val + 1) := by unfold valid big at *; omega
          have v2 : valid L (2 * k.val + 2) := by unfold valid big at *; omega
          have v3' : ¬ valid L (2 * k.val + 3) := by unfold valid big at *; omega
          have hm0 : 2 ≤ 2 * k.val ∧ valid L (2 * k.val - 2) := ⟨by omega, by unfold valid big at *; omega⟩
          have hm1 : 2 ≤ 2 * k.val + 1 ∧ valid L (2 * k.val + 1 - 2) := ⟨by omega, by unfold valid big at *; omega⟩
          ihave S8 := (Entails.of_eq (inSlotV_pos d L fx v0)) $$ S8
          icases S8 with ⟨%g4, %hin4, F8⟩
          ihave S9 := (Entails.of_eq (inSlotV_pos d L fx v1)) $$ S9
          icases S9 with ⟨%g5, %hin5, F9⟩
          ihave S10 := (Entails.of_eq (outSlotV_pos d L fx hm0)) $$ S10
          icases S10 with ⟨%g6, F10, R6⟩
          ihave S11 := (Entails.of_eq (outSlotV_pos d L fx hm1)) $$ S11
          icases S11 with ⟨%g7, F11, R7⟩
          ihave HX := (Entails.of_eq (xSet_out (xP d L fx) k.val hk)) $$ HX
          icases HX with ⟨X2, -, HX⟩
          ihave X2 := (Entails.of_eq (xP_pos d L fx v2)) $$ X2
          ihave X2 := (Entails.of_eq (in_congr d L (off_6 L k v2).symm (in_inb L _) (k12_off6_inb L k k12_h3) fx)) $$ X2
          ihave HOut := (Entails.of_eq (oSet_out (oMix d L fx k.val) k.val hk)) $$ HOut
          icases HOut with ⟨Y0, Y1, HOut⟩
          ihave Y0 := (Entails.of_eq ((oMix_ge d L fx (t := k.val) (n := 2 * k.val) (by omega)).trans (oP_pos (F := F) d L v0))) $$ Y0
          icases Y0 with ⟨%f0, Y0⟩
          ihave Y0 := (Entails.of_eq (out_congr d L (off_5 L k v0).symm (out_inb L _) (k12_off5_inb L k k12_h2) f0)) $$ Y0
          ihave Y1 := (Entails.of_eq ((oMix_ge d L fx (t := k.val) (n := 2 * k.val + 1) (by omega)).trans (oP_pos (F := F) d L v1))) $$ Y1
          icases Y1 with ⟨%f1, Y1⟩
          ihave Y1 := (Entails.of_eq (out_congr d L (off_10 L k v1).symm (out_inb L _) (k12_off10_inb L k k12_h5) f1)) $$ Y1
          sl_exec
          sl_for (laneV0 d L g4) $$ [F8_dst R6]
          case region =>
            intro (j : Fin k12_t2_loop.trips) _
            unfold laneV0
            iintro ⟨HA, %g, HB, %hl⟩
            sl_exec
            sl_step
            isplitl [HA]; · iexact HA
            iexists _; isplitl [HB]; · iexact HB
            ipureintro; exact lanes_step d L a4 a6 g4 g j _ _ hl
          · unfold laneV0
            isplitl [F8_dst]; · iexact F8_dst
            iexists _; isplitl [R6]; · iexact R6
            ipureintro; exact lanes_zero d L a4 a6 g4 _
          iintro %_ HI
          unfold laneV0
          icases HI with ⟨H4, %g6', H6, %hl6⟩
          have hl6 : Lanes d L a4 a6 g4 g6' 200 := Eq.mp (congrArg (Lanes d L a4 a6 g4 g6') trips2) hl6
          sl_exec
          sl_for (laneV1 d L g5) $$ [F9_dst R7]
          case region =>
            intro (j : Fin k12_t3_loop.trips) _
            unfold laneV1
            iintro ⟨HA, %g, HB, %hl⟩
            sl_exec
            sl_step
            isplitl [HA]; · iexact HA
            iexists _; isplitl [HB]; · iexact HB
            ipureintro; exact lanes_step' d L a5 a7 g5 g j _ _ hl
          · unfold laneV1
            isplitl [F9_dst]; · iexact F9_dst
            iexists _; isplitl [R7]; · iexact R7
            ipureintro; exact lanes_zero d L a5 a7 g5 _
          iintro %_ HI
          unfold laneV1
          icases HI with ⟨H5, %g7', H7, %hl7⟩
          have hl7 : Lanes d L a5 a7 g5 g7' 200 := Eq.mp (congrArg (Lanes d L a5 a7 g5 g7') trips3) hl7
          sl_exec
          sl_step
          isplitr; · iexact Hmw
          isplitl [HO]
          · iexists _; isplitr
            rotate_left
            · iexact HO
            ipureintro; intro p hp
            rcases Finset.mem_insert.mp hp with rfl | hp
            · exact .inr rfl
            rcases Finset.mem_insert.mp hp with rfl | hp
            · exact .inr rfl
            rcases Finset.mem_insert.mp hp with rfl | hp
            · exact .inr rfl
            rcases Finset.mem_insert.mp hp with rfl | hp
            · exact .inr rfl
            exact hW' p hp
          isplitl [HX F8_src F9_src]
          · iapply (Entails.of_eq (xSet_in (xP d L fx) k.val hk).symm)
            isplitl [F8_src]; · iapply (Entails.of_eq (xP_pos d L fx v0).symm); iexact F8_src
            isplitl [F9_src]; · iapply (Entails.of_eq (xP_pos d L fx v1).symm); iexact F9_src
            iexact HX
          isplitl [HOut F10_dst F11_dst]
          · iapply (Entails.of_eq (oSet_in (oMix d L fx (k.val + 1)) k.val hk (by omega)).symm)
            isplitl [F10_dst]; · iapply (Entails.of_eq ((oMix_lt d L fx (t := k.val + 1) (n := 2 * k.val - 2) (by omega)).trans (oQ_pos d L fx hm0.2)).symm); iexact F10_dst
            isplitl [F11_dst]
            · iapply (Entails.of_eq ((oMix_lt d L fx (t := k.val + 1) (n := 2 * k.val - 1) (by omega)).trans (oQ_pos d L fx (n := 2 * k.val - 1) (by have := hm1.2; rwa [show 2 * k.val + 1 - 2 = 2 * k.val - 1 by omega] at this))).symm)
              iapply (Entails.of_eq (congrArg (oqPiece d L fx) (show 2 * k.val + 1 - 2 = 2 * k.val - 1 by omega))); iexact F11_dst
            iapply (Entails.of_eq (oMix_core d L fx k.val)); iexact HOut
          isplitl [F8]
          · iapply (Entails.of_eq (congrArg (inSlotV d L fx a4 cc12_scratch4.sem) (show 2 * k.val + 2 = 2 * (k.val + 1) by ring)))
            iapply (fl_inV d L fx (off_6 L k v2) (k12_off6_inb L k k12_h3) v2 a4 cc12_scratch4.sem); iexists _, _
            isplitr
            rotate_left
            · iexact F8
            ipureintro; intro y; rfl
          isplitl [F10 H6]
          · iapply (Entails.of_eq (congrArg (outSlotV d L fx a6 cc12_scratch6.sem) (show 2 * k.val + 2 = 2 * (k.val + 1) by ring)))
            iapply (fl_outV d L fx (off_5 L k v0) (k12_off5_inb L k k12_h2) v0 a4 a6 cc12_scratch6.sem f0 g4 g6' hl6 hin4); iexists _
            isplitr
            rotate_left
            · isplitl [F10]; · iexact F10
              iexact H6
            ipureintro; intro y; rfl
          isplitl [H5 F9]
          · iapply (Entails.of_eq (congrArg (inSlotV d L fx a5 cc12_scratch5.sem) (show 2 * k.val + 3 = 2 * (k.val + 1) + 1 by ring)))
            iapply (Entails.of_eq (inSlotV_neg d L fx v3').symm)
            isplitl [H5]; · iexists _; iexact H5
            iexact F9
          · iapply (Entails.of_eq (congrArg (outSlotV d L fx a7 cc12_scratch7.sem) (show 2 * k.val + 1 + 2 = 2 * (k.val + 1) + 1 by ring)))
            iapply (fl_outV d L fx (off_10 L k v1) (k12_off10_inb L k k12_h5) v1 a5 a7 cc12_scratch7.sem f1 g5 g7' hl7 hin5); iexists _
            isplitr
            rotate_left
            · isplitl [F11]; · iexact F11
              iexact H7
            ipureintro; intro y; rfl
        · have h7 : k.val = 7 := by unfold valid at v3; omega
          by_cases hb : big L
          · -- the last trip of a tile with sixteen pieces: nothing more to fetch
            have k12_h1 : k12_cond1 k = 1#1 := (cond1_iff k).mpr (by omega)
            have k12_h2 : k12_cond2 L k = 1#1 := cond2_iff L k
            have k12_h3 : ¬ k12_cond3 L k = 1#1 := fun h => absurd ((cond3_iff L k).mp h) (by omega)
            have k12_h4 : k12_cond4 k = 1#1 := (cond4_iff k).mpr (by omega)
            have k12_h5 : k12_cond5 L k = 1#1 := (cond5_iff L k).mpr (by first | (unfold valid big at *; omega) | (unfold big at *; omega) | omega)
            have k12_h6 : ¬ k12_cond6 L k = 1#1 := fun h => absurd ((cond6_iff L k).mp h) (by first | (unfold valid big at *; omega) | (unfold big at *; omega) | omega)
            have v0 : valid L (2 * k.val) := by unfold valid big at *; omega
            have v1 : valid L (2 * k.val + 1) := by unfold valid big at *; omega
            have v2 : ¬ valid L (2 * k.val + 2) := by unfold valid big at *; omega
            have v3' : ¬ valid L (2 * k.val + 3) := by unfold valid big at *; omega
            have hm0 : 2 ≤ 2 * k.val ∧ valid L (2 * k.val - 2) := ⟨by omega, by unfold valid big at *; omega⟩
            have hm1 : 2 ≤ 2 * k.val + 1 ∧ valid L (2 * k.val + 1 - 2) := ⟨by omega, by unfold valid big at *; omega⟩
            ihave S8 := (Entails.of_eq (inSlotV_pos d L fx v0)) $$ S8
            icases S8 with ⟨%g4, %hin4, F8⟩
            ihave S9 := (Entails.of_eq (inSlotV_pos d L fx v1)) $$ S9
            icases S9 with ⟨%g5, %hin5, F9⟩
            ihave S10 := (Entails.of_eq (outSlotV_pos d L fx hm0)) $$ S10
            icases S10 with ⟨%g6, F10, R6⟩
            ihave S11 := (Entails.of_eq (outSlotV_pos d L fx hm1)) $$ S11
            icases S11 with ⟨%g7, F11, R7⟩
            ihave HX := (Entails.of_eq (xSet_out (xP d L fx) k.val hk)) $$ HX
            icases HX with ⟨-, -, HX⟩
            ihave HOut := (Entails.of_eq (oSet_out (oMix d L fx k.val) k.val hk)) $$ HOut
            icases HOut with ⟨Y0, Y1, HOut⟩
            ihave Y0 := (Entails.of_eq ((oMix_ge d L fx (t := k.val) (n := 2 * k.val) (by omega)).trans (oP_pos (F := F) d L v0))) $$ Y0
            icases Y0 with ⟨%f0, Y0⟩
            ihave Y0 := (Entails.of_eq (out_congr d L (off_5 L k v0).symm (out_inb L _) (k12_off5_inb L k k12_h2) f0)) $$ Y0
            ihave Y1 := (Entails.of_eq ((oMix_ge d L fx (t := k.val) (n := 2 * k.val + 1) (by omega)).trans (oP_pos (F := F) d L v1))) $$ Y1
            icases Y1 with ⟨%f1, Y1⟩
            ihave Y1 := (Entails.of_eq (out_congr d L (off_10 L k v1).symm (out_inb L _) (k12_off10_inb L k k12_h5) f1)) $$ Y1
            sl_exec
            sl_for (laneV0 d L g4) $$ [F8_dst R6]
            case region =>
              intro (j : Fin k12_t2_loop.trips) _
              unfold laneV0
              iintro ⟨HA, %g, HB, %hl⟩
              sl_exec
              sl_step
              isplitl [HA]; · iexact HA
              iexists _; isplitl [HB]; · iexact HB
              ipureintro; exact lanes_step d L a4 a6 g4 g j _ _ hl
            · unfold laneV0
              isplitl [F8_dst]; · iexact F8_dst
              iexists _; isplitl [R6]; · iexact R6
              ipureintro; exact lanes_zero d L a4 a6 g4 _
            iintro %_ HI
            unfold laneV0
            icases HI with ⟨H4, %g6', H6, %hl6⟩
            have hl6 : Lanes d L a4 a6 g4 g6' 200 := Eq.mp (congrArg (Lanes d L a4 a6 g4 g6') trips2) hl6
            sl_exec
            sl_for (laneV1 d L g5) $$ [F9_dst R7]
            case region =>
              intro (j : Fin k12_t3_loop.trips) _
              unfold laneV1
              iintro ⟨HA, %g, HB, %hl⟩
              sl_exec
              sl_step
              isplitl [HA]; · iexact HA
              iexists _; isplitl [HB]; · iexact HB
              ipureintro; exact lanes_step' d L a5 a7 g5 g j _ _ hl
            · unfold laneV1
              isplitl [F9_dst]; · iexact F9_dst
              iexists _; isplitl [R7]; · iexact R7
              ipureintro; exact lanes_zero d L a5 a7 g5 _
            iintro %_ HI
            unfold laneV1
            icases HI with ⟨H5, %g7', H7, %hl7⟩
            have hl7 : Lanes d L a5 a7 g5 g7' 200 := Eq.mp (congrArg (Lanes d L a5 a7 g5 g7') trips3) hl7
            sl_exec
            sl_step
            isplitr; · iexact Hmw
            isplitl [HO]
            · iexists _; isplitr
              rotate_left
              · iexact HO
              ipureintro; intro p hp
              rcases Finset.mem_insert.mp hp with rfl | hp
              · exact .inr rfl
              rcases Finset.mem_insert.mp hp with rfl | hp
              · exact .inr rfl
              rcases Finset.mem_insert.mp hp with rfl | hp
              · exact .inr rfl
              rcases Finset.mem_insert.mp hp with rfl | hp
              · exact .inr rfl
              exact hW' p hp
            isplitl [HX F8_src F9_src]
            · iapply (Entails.of_eq (xSet_in (xP d L fx) k.val hk).symm)
              isplitl [F8_src]; · iapply (Entails.of_eq (xP_pos d L fx v0).symm); iexact F8_src
              isplitl [F9_src]; · iapply (Entails.of_eq (xP_pos d L fx v1).symm); iexact F9_src
              iexact HX
            isplitl [HOut F10_dst F11_dst]
            · iapply (Entails.of_eq (oSet_in (oMix d L fx (k.val + 1)) k.val hk (by omega)).symm)
              isplitl [F10_dst]; · iapply (Entails.of_eq ((oMix_lt d L fx (t := k.val + 1) (n := 2 * k.val - 2) (by omega)).trans (oQ_pos d L fx hm0.2)).symm); iexact F10_dst
              isplitl [F11_dst]
              · iapply (Entails.of_eq ((oMix_lt d L fx (t := k.val + 1) (n := 2 * k.val - 1) (by omega)).trans (oQ_pos d L fx (n := 2 * k.val - 1) (by have := hm1.2; rwa [show 2 * k.val + 1 - 2 = 2 * k.val - 1 by omega] at this))).symm)
                iapply (Entails.of_eq (congrArg (oqPiece d L fx) (show 2 * k.val + 1 - 2 = 2 * k.val - 1 by omega))); iexact F11_dst
              iapply (Entails.of_eq (oMix_core d L fx k.val)); iexact HOut
            isplitl [H4 F8]
            · iapply (Entails.of_eq (congrArg (inSlotV d L fx a4 cc12_scratch4.sem) (show 2 * k.val + 2 = 2 * (k.val + 1) by ring)))
              iapply (Entails.of_eq (inSlotV_neg d L fx v2).symm)
              isplitl [H4]; · iexists _; iexact H4
              iexact F8
            isplitl [F10 H6]
            · iapply (Entails.of_eq (congrArg (outSlotV d L fx a6 cc12_scratch6.sem) (show 2 * k.val + 2 = 2 * (k.val + 1) by ring)))
              iapply (fl_outV d L fx (off_5 L k v0) (k12_off5_inb L k k12_h2) v0 a4 a6 cc12_scratch6.sem f0 g4 g6' hl6 hin4); iexists _
              isplitr
              rotate_left
              · isplitl [F10]; · iexact F10
                iexact H6
              ipureintro; intro y; rfl
            isplitl [H5 F9]
            · iapply (Entails.of_eq (congrArg (inSlotV d L fx a5 cc12_scratch5.sem) (show 2 * k.val + 3 = 2 * (k.val + 1) + 1 by ring)))
              iapply (Entails.of_eq (inSlotV_neg d L fx v3').symm)
              isplitl [H5]; · iexists _; iexact H5
              iexact F9
            · iapply (Entails.of_eq (congrArg (outSlotV d L fx a7 cc12_scratch7.sem) (show 2 * k.val + 1 + 2 = 2 * (k.val + 1) + 1 by ring)))
              iapply (fl_outV d L fx (off_10 L k v1) (k12_off10_inb L k k12_h5) v1 a5 a7 cc12_scratch7.sem f1 g5 g7' hl7 hin5); iexists _
              isplitr
              rotate_left
              · isplitl [F11]; · iexact F11
                iexact H7
              ipureintro; intro y; rfl
          · -- the last trip of a tile with fifteen pieces: the second slot only drains
            have k12_h1 : k12_cond1 k = 1#1 := (cond1_iff k).mpr (by omega)
            have k12_h2 : k12_cond2 L k = 1#1 := cond2_iff L k
            have k12_h3 : ¬ k12_cond3 L k = 1#1 := fun h => absurd ((cond3_iff L k).mp h) (by omega)
            have k12_h4 : k12_cond4 k = 1#1 := (cond4_iff k).mpr (by omega)
            have k12_h5 : ¬ k12_cond5 L k = 1#1 := fun h => absurd ((cond5_iff L k).mp h) (by first | (unfold valid big at *; omega) | (unfold big at *; omega) | omega)
            have k12_h6 : ¬ k12_cond6 L k = 1#1 := fun h => absurd ((cond6_iff L k).mp h) (by first | (unfold valid big at *; omega) | (unfold big at *; omega) | omega)
            have v0 : valid L (2 * k.val) := by unfold valid big at *; omega
            have v1 : ¬ valid L (2 * k.val + 1) := by unfold valid big at *; omega
            have v2 : ¬ valid L (2 * k.val + 2) := by unfold valid big at *; omega
            have v3' : ¬ valid L (2 * k.val + 3) := by unfold valid big at *; omega
            have hm0 : 2 ≤ 2 * k.val ∧ valid L (2 * k.val - 2) := ⟨by omega, by unfold valid big at *; omega⟩
            have hm1 : 2 ≤ 2 * k.val + 1 ∧ valid L (2 * k.val + 1 - 2) := ⟨by omega, by unfold valid big at *; omega⟩
            ihave S8 := (Entails.of_eq (inSlotV_pos d L fx v0)) $$ S8
            icases S8 with ⟨%g4, %hin4, F8⟩
            ihave S9 := (Entails.of_eq (inSlotV_neg d L fx v1)) $$ S9
            icases S9 with ⟨⟨%g5, H5⟩, F9⟩
            ihave S10 := (Entails.of_eq (outSlotV_pos d L fx hm0)) $$ S10
            icases S10 with ⟨%g6, F10, R6⟩
            ihave S11 := (Entails.of_eq (outSlotV_pos d L fx hm1)) $$ S11
            icases S11 with ⟨%g7, F11, R7⟩
            ihave HX := (Entails.of_eq (xSet_out (xP d L fx) k.val hk)) $$ HX
            icases HX with ⟨-, -, HX⟩
            ihave HOut := (Entails.of_eq (oSet_out (oMix d L fx k.val) k.val hk)) $$ HOut
            icases HOut with ⟨Y0, -, HOut⟩
            ihave Y0 := (Entails.of_eq ((oMix_ge d L fx (t := k.val) (n := 2 * k.val) (by omega)).trans (oP_pos (F := F) d L v0))) $$ Y0
            icases Y0 with ⟨%f0, Y0⟩
            ihave Y0 := (Entails.of_eq (out_congr d L (off_5 L k v0).symm (out_inb L _) (k12_off5_inb L k k12_h2) f0)) $$ Y0
            sl_exec
            sl_for (laneV0 d L g4) $$ [F8_dst R6]
            case region =>
              intro (j : Fin k12_t2_loop.trips) _
              unfold laneV0
              iintro ⟨HA, %g, HB, %hl⟩
              sl_exec
              sl_step
              isplitl [HA]; · iexact HA
              iexists _; isplitl [HB]; · iexact HB
              ipureintro; exact lanes_step d L a4 a6 g4 g j _ _ hl
            · unfold laneV0
              isplitl [F8_dst]; · iexact F8_dst
              iexists _; isplitl [R6]; · iexact R6
              ipureintro; exact lanes_zero d L a4 a6 g4 _
            iintro %_ HI
            unfold laneV0
            icases HI with ⟨H4, %g6', H6, %hl6⟩
            have hl6 : Lanes d L a4 a6 g4 g6' 200 := Eq.mp (congrArg (Lanes d L a4 a6 g4 g6') trips2) hl6
            sl_exec
            sl_step
            isplitr; · iexact Hmw
            isplitl [HO]
            · iexists _; isplitr
              rotate_left
              · iexact HO
              ipureintro; intro p hp
              rcases Finset.mem_insert.mp hp with rfl | hp
              · exact .inr rfl
              rcases Finset.mem_insert.mp hp with rfl | hp
              · exact .inr rfl
              rcases Finset.mem_insert.mp hp with rfl | hp
              · exact .inr rfl
              exact hW' p hp
            isplitl [HX F8_src]
            · iapply (Entails.of_eq (xSet_in (xP d L fx) k.val hk).symm)
              isplitl [F8_src]; · iapply (Entails.of_eq (xP_pos d L fx v0).symm); iexact F8_src
              isplitr; · iapply (Entails.of_eq (xP_neg d L fx v1).symm); iempintro
              iexact HX
            isplitl [HOut F10_dst F11_dst]
            · iapply (Entails.of_eq (oSet_in (oMix d L fx (k.val + 1)) k.val hk (by omega)).symm)
              isplitl [F10_dst]; · iapply (Entails.of_eq ((oMix_lt d L fx (t := k.val + 1) (n := 2 * k.val - 2) (by omega)).trans (oQ_pos d L fx hm0.2)).symm); iexact F10_dst
              isplitl [F11_dst]
              · iapply (Entails.of_eq ((oMix_lt d L fx (t := k.val + 1) (n := 2 * k.val - 1) (by omega)).trans (oQ_pos d L fx (n := 2 * k.val - 1) (by have := hm1.2; rwa [show 2 * k.val + 1 - 2 = 2 * k.val - 1 by omega] at this))).symm)
                iapply (Entails.of_eq (congrArg (oqPiece d L fx) (show 2 * k.val + 1 - 2 = 2 * k.val - 1 by omega))); iexact F11_dst
              iapply (Entails.of_eq (oMix_core d L fx k.val)); iexact HOut
            isplitl [H4 F8]
            · iapply (Entails.of_eq (congrArg (inSlotV d L fx a4 cc12_scratch4.sem) (show 2 * k.val + 2 = 2 * (k.val + 1) by ring)))
              iapply (Entails.of_eq (inSlotV_neg d L fx v2).symm)
              isplitl [H4]; · iexists _; iexact H4
              iexact F8
            isplitl [F10 H6]
            · iapply (Entails.of_eq (congrArg (outSlotV d L fx a6 cc12_scratch6.sem) (show 2 * k.val + 2 = 2 * (k.val + 1) by ring)))
              iapply (fl_outV d L fx (off_5 L k v0) (k12_off5_inb L k k12_h2) v0 a4 a6 cc12_scratch6.sem f0 g4 g6' hl6 hin4); iexists _
              isplitr
              rotate_left
              · isplitl [F10]; · iexact F10
                iexact H6
              ipureintro; intro y; rfl
            isplitl [H5 F9]
            · iapply (Entails.of_eq (congrArg (inSlotV d L fx a5 cc12_scratch5.sem) (show 2 * k.val + 3 = 2 * (k.val + 1) + 1 by ring)))
              iapply (Entails.of_eq (inSlotV_neg d L fx v3').symm)
              isplitl [H5]; · iexists _; iexact H5
              iexact F9
            · iapply (Entails.of_eq (outSlotV_neg d L fx (m := 2 * (k.val + 1) + 1) (by intro h; apply v1; have := h.2; rwa [show 2 * (k.val + 1) + 1 - 2 = 2 * k.val + 1 by omega] at this)).symm)
              isplitl [R7]; · iexists _; iexact R7
              iexact F11
    · have hk0 : k.val = 0 := by omega
      -- the first trip: nothing to drain
      have k12_h1 : ¬ k12_cond1 k = 1#1 := fun h => absurd ((cond1_iff k).mp h) (by omega)
      have k12_h2 : k12_cond2 L k = 1#1 := cond2_iff L k
      have k12_h3 : k12_cond3 L k = 1#1 := (cond3_iff L k).mpr (by omega)
      have k12_h4 : ¬ k12_cond4 k = 1#1 := fun h => absurd ((cond4_iff k).mp h) (by omega)
      have k12_h5 : k12_cond5 L k = 1#1 := (cond5_iff L k).mpr (by first | (unfold valid big at *; omega) | (unfold big at *; omega) | omega)
      have k12_h6 : k12_cond6 L k = 1#1 := (cond6_iff L k).mpr (by first | (unfold valid big at *; omega) | (unfold big at *; omega) | omega)
      have v0 : valid L (2 * k.val) := by unfold valid big at *; omega
      have v1 : valid L (2 * k.val + 1) := by unfold valid big at *; omega
      have v2 : valid L (2 * k.val + 2) := by unfold valid big at *; omega
      have v3' : valid L (2 * k.val + 3) := by unfold valid big at *; omega
      have hm0 : ¬ (2 ≤ 2 * k.val ∧ valid L (2 * k.val - 2)) := by omega
      have hm1 : ¬ (2 ≤ 2 * k.val + 1 ∧ valid L (2 * k.val + 1 - 2)) := by omega
      ihave S8 := (Entails.of_eq (inSlotV_pos d L fx v0)) $$ S8
      icases S8 with ⟨%g4, %hin4, F8⟩
      ihave S9 := (Entails.of_eq (inSlotV_pos d L fx v1)) $$ S9
      icases S9 with ⟨%g5, %hin5, F9⟩
      ihave S10 := (Entails.of_eq (outSlotV_neg d L fx hm0)) $$ S10
      icases S10 with ⟨⟨%g6, R6⟩, F10⟩
      ihave S11 := (Entails.of_eq (outSlotV_neg d L fx hm1)) $$ S11
      icases S11 with ⟨⟨%g7, R7⟩, F11⟩
      ihave HX := (Entails.of_eq (xSet_out (xP d L fx) k.val hk)) $$ HX
      icases HX with ⟨X2, X3, HX⟩
      ihave X2 := (Entails.of_eq (xP_pos d L fx v2)) $$ X2
      ihave X2 := (Entails.of_eq (in_congr d L (off_6 L k v2).symm (in_inb L _) (k12_off6_inb L k k12_h3) fx)) $$ X2
      ihave X3 := (Entails.of_eq (xP_pos d L fx v3')) $$ X3
      ihave X3 := (Entails.of_eq (in_congr d L (off_11 L k v3').symm (in_inb L _) (k12_off11_inb L k k12_h6) fx)) $$ X3
      ihave HOut := (Entails.of_eq (oSet_out (oMix d L fx k.val) k.val hk)) $$ HOut
      icases HOut with ⟨Y0, Y1, HOut⟩
      ihave Y0 := (Entails.of_eq ((oMix_ge d L fx (t := k.val) (n := 2 * k.val) (by omega)).trans (oP_pos (F := F) d L v0))) $$ Y0
      icases Y0 with ⟨%f0, Y0⟩
      ihave Y0 := (Entails.of_eq (out_congr d L (off_5 L k v0).symm (out_inb L _) (k12_off5_inb L k k12_h2) f0)) $$ Y0
      ihave Y1 := (Entails.of_eq ((oMix_ge d L fx (t := k.val) (n := 2 * k.val + 1) (by omega)).trans (oP_pos (F := F) d L v1))) $$ Y1
      icases Y1 with ⟨%f1, Y1⟩
      ihave Y1 := (Entails.of_eq (out_congr d L (off_10 L k v1).symm (out_inb L _) (k12_off10_inb L k k12_h5) f1)) $$ Y1
      sl_exec
      sl_for (laneV0 d L g4) $$ [F8_dst R6]
      case region =>
        intro (j : Fin k12_t2_loop.trips) _
        unfold laneV0
        iintro ⟨HA, %g, HB, %hl⟩
        sl_exec
        sl_step
        isplitl [HA]; · iexact HA
        iexists _; isplitl [HB]; · iexact HB
        ipureintro; exact lanes_step d L a4 a6 g4 g j _ _ hl
      · unfold laneV0
        isplitl [F8_dst]; · iexact F8_dst
        iexists _; isplitl [R6]; · iexact R6
        ipureintro; exact lanes_zero d L a4 a6 g4 _
      iintro %_ HI
      unfold laneV0
      icases HI with ⟨H4, %g6', H6, %hl6⟩
      have hl6 : Lanes d L a4 a6 g4 g6' 200 := Eq.mp (congrArg (Lanes d L a4 a6 g4 g6') trips2) hl6
      sl_exec
      sl_for (laneV1 d L g5) $$ [F9_dst R7]
      case region =>
        intro (j : Fin k12_t3_loop.trips) _
        unfold laneV1
        iintro ⟨HA, %g, HB, %hl⟩
        sl_exec
        sl_step
        isplitl [HA]; · iexact HA
        iexists _; isplitl [HB]; · iexact HB
        ipureintro; exact lanes_step' d L a5 a7 g5 g j _ _ hl
      · unfold laneV1
        isplitl [F9_dst]; · iexact F9_dst
        iexists _; isplitl [R7]; · iexact R7
        ipureintro; exact lanes_zero d L a5 a7 g5 _
      iintro %_ HI
      unfold laneV1
      icases HI with ⟨H5, %g7', H7, %hl7⟩
      have hl7 : Lanes d L a5 a7 g5 g7' 200 := Eq.mp (congrArg (Lanes d L a5 a7 g5 g7') trips3) hl7
      sl_exec
      sl_step
      isplitr; · iexact Hmw
      isplitl [HO]
      · iexists _; isplitr
        rotate_left
        · iexact HO
        ipureintro; intro p hp
        rcases Finset.mem_insert.mp hp with rfl | hp
        · exact .inr rfl
        rcases Finset.mem_insert.mp hp with rfl | hp
        · exact .inr rfl
        exact hW' p hp
      isplitl [HX F8_src F9_src]
      · iapply (Entails.of_eq (xSet_in (xP d L fx) k.val hk).symm)
        isplitl [F8_src]; · iapply (Entails.of_eq (xP_pos d L fx v0).symm); iexact F8_src
        isplitl [F9_src]; · iapply (Entails.of_eq (xP_pos d L fx v1).symm); iexact F9_src
        iexact HX
      isplitl [HOut]
      · iapply (Entails.of_eq (congrArg (fun s => bigSep s (oMix d L fx (k.val + 1))) (show oCore k.val = oSet (k.val + 1) by rw [hk0]; decide)))
        iapply (Entails.of_eq (oMix_core d L fx k.val)); iexact HOut
      isplitl [F8]
      · iapply (Entails.of_eq (congrArg (inSlotV d L fx a4 cc12_scratch4.sem) (show 2 * k.val + 2 = 2 * (k.val + 1) by ring)))
        iapply (fl_inV d L fx (off_6 L k v2) (k12_off6_inb L k k12_h3) v2 a4 cc12_scratch4.sem); iexists _, _
        isplitr
        rotate_left
        · iexact F8
        ipureintro; intro y; rfl
      isplitl [F10 H6]
      · iapply (Entails.of_eq (congrArg (outSlotV d L fx a6 cc12_scratch6.sem) (show 2 * k.val + 2 = 2 * (k.val + 1) by ring)))
        iapply (fl_outV d L fx (off_5 L k v0) (k12_off5_inb L k k12_h2) v0 a4 a6 cc12_scratch6.sem f0 g4 g6' hl6 hin4); iexists _
        isplitr
        rotate_left
        · isplitl [F10]; · iexact F10
          iexact H6
        ipureintro; intro y; rfl
      isplitl [F9]
      · iapply (Entails.of_eq (congrArg (inSlotV d L fx a5 cc12_scratch5.sem) (show 2 * k.val + 3 = 2 * (k.val + 1) + 1 by ring)))
        iapply (fl_inV d L fx (off_11 L k v3') (k12_off11_inb L k k12_h6) v3' a5 cc12_scratch5.sem); iexists _, _
        isplitr
        rotate_left
        · iexact F9
        ipureintro; intro y; rfl
      · iapply (Entails.of_eq (congrArg (outSlotV d L fx a7 cc12_scratch7.sem) (show 2 * k.val + 1 + 2 = 2 * (k.val + 1) + 1 by ring)))
        iapply (fl_outV d L fx (off_10 L k v1) (k12_off10_inb L k k12_h5) v1 a5 a7 cc12_scratch7.sem f1 g5 g7' hl7 hin5); iexists _
        isplitr
        rotate_left
        · isplitl [F11]; · iexact F11
          iexact H7
        ipureintro; intro y; rfl
  · unfold invV
    isplitr; · iexact Hmw
    isplitl [HO]
    · iexists W; isplitr
      · ipureintro; exact fun p hp => .inl hp
      · iexact HO
    isplitl [HX]; · iexact HX
    isplitl [HOut]; · iapply (Entails.of_eq (oMix_zero d L fx).symm); iexact HOut
    isplitl [S8]; · iexact S8
    isplitl [H6 Hs10]
    · rw [outSlotV_neg d L fx (by omega)]; isplitl [H6]; · iexists _; iexact H6
      iexact Hs10
    isplitl [S9]; · iexact S9
    rw [outSlotV_neg d L fx (by omega)]; isplitl [H7]; · iexists _; iexact H7
    iexact Hs11
  iintro %acc' HI
  ihave HI := (Entails.of_eq (congrArg (fun t => invV d L O W fx t acc') trips1)) $$ HI
  unfold invV
  icases HI with ⟨-, ⟨%W', %hW', HO⟩, HX, HOut, S8, S10, S9, S11⟩
  have nv16 : ¬ valid L (2 * 8) := by unfold valid; omega
  have nv17 : ¬ valid L (2 * 8 + 1) := by unfold valid; omega
  have hm14 : 2 ≤ 2 * 8 ∧ valid L (2 * 8 - 2) := ⟨by omega, Or.inl (by omega)⟩
  ihave S8 := (Entails.of_eq (inSlotV_neg d L fx nv16)) $$ S8
  icases S8 with ⟨⟨%g4', H4⟩, Hs8⟩
  ihave S9 := (Entails.of_eq (inSlotV_neg d L fx nv17)) $$ S9
  icases S9 with ⟨⟨%g5', H5⟩, Hs9⟩
  ihave S10 := (Entails.of_eq (outSlotV_pos d L fx hm14)) $$ S10
  icases S10 with ⟨%g6', F10, R6⟩
  by_cases hb : big L
  · have k12_h8 : k12_cond8 L = 1#1 := (cond8_iff L).mpr hb
    have hm15 : 2 ≤ 2 * 8 + 1 ∧ valid L (2 * 8 + 1 - 2) := ⟨by omega, Or.inr ⟨by omega, hb⟩⟩
    ihave S11 := (Entails.of_eq (outSlotV_pos d L fx hm15)) $$ S11
    icases S11 with ⟨%g7', F11, R7⟩
    sl_exec
    sl_step
    isplitl [HX]; · iapply (xRange_end d L fx); iexact HX
    isplitl [HOut F10_dst F11_dst]
    · iapply (Entails.of_eq (oRange_end (oQ d L fx)).symm)
      isplitl [F10_dst]; · iapply (Entails.of_eq (oQ_pos d L fx hm14.2).symm); iexact F10_dst
      isplitl [F11_dst]; · iapply (Entails.of_eq (oQ_pos d L fx hm15.2).symm); iexact F11_dst
      iapply (Entails.of_eq (oMix_end d L fx)); iexact HOut
    isplitl [H4]; · iexists _; iexact H4
    isplitl [H5]; · iexists _; iexact H5
    isplitl [R6]; · iexists _; iexact R6
    isplitl [R7]; · iexists _; iexact R7
    isplitl [Hs8]; · iexact Hs8
    isplitl [Hs9]; · iexact Hs9
    isplitl [F10]; · iexact F10
    isplitl [F11]; · iexact F11
    isplitl [HO]
    · iexists _; isplitr
      rotate_left
      · iexact HO
      ipureintro; intro p hp
      rcases Finset.mem_insert.mp hp with rfl | hp
      · exact .inr rfl
      rcases Finset.mem_insert.mp hp with rfl | hp
      · exact .inr rfl
      exact hW' p hp
    iexact HR
  · have k12_h8 : ¬ k12_cond8 L = 1#1 := fun h => hb ((cond8_iff L).mp h)
    have hm15 : ¬ (2 ≤ 2 * 8 + 1 ∧ valid L (2 * 8 + 1 - 2)) := by intro h; have := h.2; unfold valid at this; omega
    ihave S11 := (Entails.of_eq (outSlotV_neg d L fx hm15)) $$ S11
    icases S11 with ⟨⟨%g7', R7⟩, F11⟩
    sl_exec
    sl_step
    isplitl [HX]; · iapply (xRange_end d L fx); iexact HX
    isplitl [HOut F10_dst]
    · iapply (Entails.of_eq (oRange_end (oQ d L fx)).symm)
      isplitl [F10_dst]; · iapply (Entails.of_eq (oQ_pos d L fx hm14.2).symm); iexact F10_dst
      isplitr; · iapply (Entails.of_eq (oQ_neg d L fx (n := 15) (by unfold valid; omega)).symm); iempintro
      iapply (Entails.of_eq (oMix_end d L fx)); iexact HOut
    isplitl [H4]; · iexists _; iexact H4
    isplitl [H5]; · iexists _; iexact H5
    isplitl [R6]; · iexists _; iexact R6
    isplitl [R7]; · iexists _; iexact R7
    isplitl [Hs8]; · iexact Hs8
    isplitl [Hs9]; · iexact Hs9
    isplitl [F10]; · iexact F10
    isplitl [F11]; · iexact F11
    isplitl [HO]
    · iexists _; isplitr
      rotate_left
      · iexact HO
      ipureintro; intro p hp
      rcases Finset.mem_insert.mp hp with rfl | hp
      · exact .inr rfl
      exact hW' p hp
    iexact HR

/-! The subcore's scoped storage: the four staging buffers and the four semaphores of this call, and the rest. -/

abbrev c8 : GSem nD τ sig := (thr d L, SemLoc.dma cc12_scratch4.sem)
abbrev c9 : GSem nD τ sig := (thr d L, SemLoc.dma cc12_scratch5.sem)
abbrev c10 : GSem nD τ sig := (thr d L, SemLoc.dma cc12_scratch6.sem)
abbrev c11 : GSem nD τ sig := (thr d L, SemLoc.dma cc12_scratch7.sem)

omit [FloatOps F] in
theorem ownSems0_V :
    (ownSems0 (thr d L) : sProp 𝕄)
      = iprop(semVal (c8 d L) 0 ∗ semVal (c9 d L) 0 ∗ semVal (c10 d L) 0 ∗ semVal (c11 d L) 0
          ∗ bigSep (((((ownCells (thr d L)).erase (c8 d L)).erase (c9 d L)).erase (c10 d L)).erase (c11 d L)) fun g => semVal g 0) := by
  unfold SparseCore.Cfg.ownSems0
  rw [SparseCore.bigSep_erase' ((mem_ownCells (g := c8 d L)).mpr ⟨rfl, by
      show (SemLoc.dma cc12_scratch4.sem : SemLoc sig).isScoped .scVector = true; decide⟩),
    SparseCore.bigSep_erase' (Finset.mem_erase.mpr ⟨fun e => absurd (Prod.mk.inj e).2 (by decide), (mem_ownCells (g := c9 d L)).mpr ⟨rfl, by
      show (SemLoc.dma cc12_scratch5.sem : SemLoc sig).isScoped .scVector = true; decide⟩⟩),
    SparseCore.bigSep_erase' (Finset.mem_erase.mpr ⟨fun e => absurd (Prod.mk.inj e).2 (by decide), Finset.mem_erase.mpr ⟨fun e => absurd (Prod.mk.inj e).2 (by decide),
      (mem_ownCells (g := c10 d L)).mpr ⟨rfl, by show (SemLoc.dma cc12_scratch6.sem : SemLoc sig).isScoped .scVector = true; decide⟩⟩⟩),
    SparseCore.bigSep_erase' (Finset.mem_erase.mpr ⟨fun e => absurd (Prod.mk.inj e).2 (by decide), Finset.mem_erase.mpr ⟨fun e => absurd (Prod.mk.inj e).2 (by decide),
      Finset.mem_erase.mpr ⟨fun e => absurd (Prod.mk.inj e).2 (by decide),
      (mem_ownCells (g := c11 d L)).mpr ⟨rfl, by show (SemLoc.dma cc12_scratch7.sem : SemLoc sig).isScoped .scVector = true; decide⟩⟩⟩⟩)]

abbrev pV (L : grid12.Coords) : Proc τ := Proc.scVector (cV L) (jV L)

omit [FloatOps F] in
theorem ownBufs_V :
    (ownBufs (thr d L) : sProp 𝕄)
      = iprop((∃ f, (thr d L).loc cc12_scratch0 ↦{fullShare} f) ∗ (∃ f, (thr d L).loc cc12_scratch1 ↦{fullShare} f)
          ∗ (∃ f, (thr d L).loc cc12_scratch2 ↦{fullShare} f) ∗ (∃ f, (thr d L).loc cc12_scratch3 ↦{fullShare} f)
          ∗ bigSep (((((ownRefs (τ := τ) (pV L)).erase ((pV L).devRef cc12_scratch0)).erase ((pV L).devRef cc12_scratch1)).erase
              ((pV L).devRef cc12_scratch2)).erase ((pV L).devRef cc12_scratch3))
              fun b => iprop(∃ f, ((d, b) : Loc nD τ sig) ↦{fullShare} f)) := by
  unfold SparseCore.Cfg.ownBufs
  refine (SparseCore.bigSep_erase' (SparseCore.Cfg.mem_ownRefs_of_owner (p := pV L) (b := (pV L).devRef cc12_scratch0) rfl)).trans ?_
  rw [SparseCore.bigSep_erase' (Finset.mem_erase.mpr ⟨fun e => absurd (Proc.devRef_injective _ e) (show (cc12_scratch1 : Ref sig .scVector) ≠ cc12_scratch0 by decide),
      SparseCore.Cfg.mem_ownRefs_of_owner (p := pV L) (b := (pV L).devRef cc12_scratch1) rfl⟩),
    SparseCore.bigSep_erase' (Finset.mem_erase.mpr ⟨fun e => absurd (Proc.devRef_injective _ e) (show (cc12_scratch2 : Ref sig .scVector) ≠ cc12_scratch1 by decide),
      Finset.mem_erase.mpr ⟨fun e => absurd (Proc.devRef_injective _ e) (show (cc12_scratch2 : Ref sig .scVector) ≠ cc12_scratch0 by decide),
      SparseCore.Cfg.mem_ownRefs_of_owner (p := pV L) (b := (pV L).devRef cc12_scratch2) rfl⟩⟩),
    SparseCore.bigSep_erase' (Finset.mem_erase.mpr ⟨fun e => absurd (Proc.devRef_injective _ e) (show (cc12_scratch3 : Ref sig .scVector) ≠ cc12_scratch2 by decide),
      Finset.mem_erase.mpr ⟨fun e => absurd (Proc.devRef_injective _ e) (show (cc12_scratch3 : Ref sig .scVector) ≠ cc12_scratch1 by decide),
      Finset.mem_erase.mpr ⟨fun e => absurd (Proc.devRef_injective _ e) (show (cc12_scratch3 : Ref sig .scVector) ≠ cc12_scratch0 by decide),
      SparseCore.Cfg.mem_ownRefs_of_owner (p := pV L) (b := (pV L).devRef cc12_scratch3) rfl⟩⟩⟩)]

/-- The rest of the subcore's scoped storage, which the task does not touch. -/
def restR : sProp 𝕄 :=
  iprop((bigSep (((((ownRefs (τ := τ) (pV L)).erase ((pV L).devRef cc12_scratch0)).erase ((pV L).devRef cc12_scratch1)).erase
              ((pV L).devRef cc12_scratch2)).erase ((pV L).devRef cc12_scratch3))
              fun b => iprop(∃ f, ((d, b) : Loc nD τ sig) ↦{fullShare} f))
      ∗ bigSep (((((ownCells (thr d L)).erase (c8 d L)).erase (c9 d L)).erase (c10 d L)).erase (c11 d L)) fun g => semVal g 0)

theorem body_pre (hO : ∀ g, O g none = 0) :
    iprop(levAts (K (F := F)).L (K (F := F)).lev ∗ emp ∗ goRes d L fx ∗ ownBufs (thr d L) ∗ ownSems0 (thr d L) ∗ owes (thr d L) O W)
      ⊢ runPre d L O W fx (restR (F := F) d L) := by
  rw [ownSems0_V, ownBufs_V]
  unfold goRes runPre restR
  iintro ⟨#Hlv, -, ⟨HX, HOut⟩, ⟨H4, H5, H6, H7, Hbufs⟩, ⟨Hs8, Hs9, Hs10, Hs11, Hsems⟩, HO⟩
  ihave Hmw := ((K (F := F)).mayWaits_none (thr := thr d L) hO) $$ Hlv
  isplitr; · iexact Hmw
  isplitl [HO]; · iexact HO
  isplitl [HX]; · iexact HX
  isplitl [HOut]; · iexact HOut
  isplitl [H4]; · iexact H4
  isplitl [H5]; · iexact H5
  isplitl [H6]; · iexact H6
  isplitl [H7]; · iexact H7
  isplitl [Hs8]; · iexact Hs8
  isplitl [Hs9]; · iexact Hs9
  isplitl [Hs10]; · iexact Hs10
  isplitl [Hs11]; · iexact Hs11
  isplitl [Hbufs]; · iexact Hbufs
  iexact Hsems

theorem body_post :
    runPost d L O W fx (restR (F := F) d L)
      ⊢ iprop(tdRes d L fx ∗ ownBufs (thr d L) ∗ ownSems0 (thr d L) ∗ ∃ W', ⌜∀ p ∈ W', p ∈ W ∨ p.2 = none⌝ ∗ owes (thr d L) O W') := by
  rw [ownSems0_V, ownBufs_V]
  unfold tdRes runPost restR
  iintro ⟨HX, HOut, H4, H5, H6, H7, Hs8, Hs9, Hs10, Hs11, HW, Hbufs, Hsems⟩
  isplitl [HX HOut]
  · isplitl [HX]; · iexact HX
    iexact HOut
  isplitl [H4 H5 H6 H7 Hbufs]
  · isplitl [H4]; · iexact H4
    isplitl [H5]; · iexact H5
    isplitl [H6]; · iexact H6
    isplitl [H7]; · iexact H7
    iexact Hbufs
  isplitl [Hs8 Hs9 Hs10 Hs11 Hsems]
  · isplitl [Hs8]; · iexact Hs8
    isplitl [Hs9]; · iexact Hs9
    isplitl [Hs10]; · iexact Hs10
    isplitl [Hs11]; · iexact Hs11
    iexact Hsems
  iexact HW

/-- The task in the launch theorem's shape: from what the call hands the tile and the subcore's scoped storage to
    what the tile hands back and the storage again. -/
theorem tile_body (hF : (K (F := F)).Facts) (hO : ∀ g, O g none = 0) :
    iprop(levAts (K (F := F)).L (K (F := F)).lev ∗ emp ∗ goRes d L fx ∗ scopedBufs (thr d L) ∗ scopedSems0 (thr d L) ∗ owes (thr d L) O W)
      ⊢ wp frame (wpE (defs₀ (F := F)) 𝒱₀ (thr d L) none) Set.univ
          (cc12_sc_group L xtW (Memref.isWhole_whole _) oW (Memref.isWhole_whole _) a4 (Memref.isWhole_whole _) a5 (Memref.isWhole_whole _)
            a6 (Memref.isWhole_whole _) a7 (Memref.isWhole_whole _) cc12_scratch4 cc12_scratch5 cc12_scratch6 cc12_scratch7)
          fun _ => iprop(tdRes d L fx ∗ scopedBufs (thr d L) ∗ scopedSems0 (thr d L)
            ∗ ∃ W', ⌜∀ p ∈ W', p ∈ W ∨ p.2 = none⌝ ∗ owes (thr d L) O W') := by
  rw [(K (F := F)).scopedBufs_V hF d (cV L) (jV L), SparseCore.Cfg.scopedSems0_V (Val := Elt F) d (cV L) (jV L)]
  exact (body_pre d L O W fx hO).trans ((tile_run d L O W fx (restR (F := F) d L)).trans (wp_mono frame _ _ fun _ => body_post d L O W fx))

end Tile

end Cert.Proof.TileK12

end
-- ==== Proof.TileBVal12.lean ====
/-
  What the staging buffers of one vector subcore hold while it copies a piece of 3200 consecutive elements of row 12 of
  the transposed argument into the flat result, read index by index. No program and no ownership here: only the contents.

  A transfer lands the piece in row 0 of an 8 × 3200 staging array (`InRow`: position (0, t) of that row holds element
  (0, pos + t) of the transposed argument, `pos` the piece's first column). A loop of 200 trips copies that row, 16 lanes
  per trip, into the first 3200 elements of a flat staging array of 25600: trip `j` reads the 1 × 16 window at columns
  [16 j, 16 j + 16) of row 0 and writes it, flattened, at elements [16 j, 16 j + 16). After `j` trips the first 16 j
  elements of the flat array are the first 16 j elements of the row (`Lanes`); a trip extends the prefix by 16
  (`lanes_step`: an element below 16 j is outside the window written and keeps its value, an element of the window reads
  the lane written there, which is the row's element at the same column). A second transfer writes the first 3200
  elements of the flat array to the piece of the result at the same `pos`; so every element of that piece of the result
  holds the element of row 12 of the transposed argument at its own position (`out_written`): the composite of the three
  index maps t ↦ (0, pos + t) ↦ (0, t) ↦ t ↦ pos + t is the identity on positions of the row.
-/
import proofs.«206869_g37898791420194_cont_8to1_b_558_20_alg».proof.Proof.TileB12Defs
import proofs.«206869_g37898791420194_cont_8to1_b_558_20_alg».proof.Proof.Spec
import Idealize.ShloMosaic.Lib.WritesUnit
import Idealize.ShloMosaic.Lib.ValueLayout

noncomputable section

namespace Cert.Proof.TileBVal12

open Cert.Proof.TileB12 Cert.Kernel Cert.Kernel.Gen
open Idealize.ShloMosaic Idealize.ShloMosaic.ValueIdx

variable {F : FTy → Type} [FloatOps F]
variable (d : Dev nD) (L : grid12.Coords)
variable (fx : Buf (Elt F) ((Memref.whole main_v0_scv : Memref sig .scVector .hbm S22x1600000 .f32).view.loc (thr d L)))

abbrev rowRect : Rect S8x3200 := Rect.unit (s := S8x3200) ![0, 0] S1x3200.size inb_S8x3200_S1x3200_0_0

/-- row 0 of the staging array is piece n of the argument row -/
def InRow (a : Memref sig .scVector .vmem S8x3200 .f32) (ga : Buf (Elt F) (a.view.loc (thr d L))) (n : ℕ) : Prop :=
  ∀ y : S1x3200.Idx, a.view.read (Elt F) ga (rowRect.emb y) = (inM L n).view.read (Elt F) fx y

theorem inRow_fetch (a : Memref sig .scVector .vmem S8x3200 .f32) (gold : Buf (Elt F) (a.view.loc (thr d L)))
    (w : S1x3200.Idx → Elt F .f32) (n : ℕ) (hw : ∀ y, w y = (inM L n).view.read (Elt F) fx y) :
    InRow d L fx a (a.view.writes (Elt F) gold [⟨rowRect, w⟩]) n :=
  fun y => (View.read_writes_cons_emb a.view gold rowRect w [] y).trans (hw y)

def Lanes (a : Memref sig .scVector .vmem S8x3200 .f32) (b : Memref sig .scVector .vmem S25600 .f32)
    (ga : Buf (Elt F) (a.view.loc (thr d L))) (gb : Buf (Elt F) (b.view.loc (thr d L))) (j : ℕ) : Prop :=
  ∀ (r : ℕ) (hr : r < 3200), r < 16 * j →
    b.view.read (Elt F) gb (ix1 (⟨r, by omega⟩ : Fin 25600)) = a.view.read (Elt F) ga (ix2 (0 : Fin 8) (⟨r, hr⟩ : Fin 3200))

theorem lanes_zero (a : Memref sig .scVector .vmem S8x3200 .f32) (b : Memref sig .scVector .vmem S25600 .f32)
    (ga : Buf (Elt F) (a.view.loc (thr d L))) (gb : Buf (Elt F) (b.view.loc (thr d L))) : Lanes d L a b ga gb 0 := by
  intro r hr h; omega

/-- The 1 × 16 window at column `c` of the staging array, read at lane `t`, is element `(0, c + t)`. -/
theorem idx_window {off : Fin 2 → ℕ} {c : ℕ} (h : off = ![0, c]) (p : ∀ a', off a' + S1x16.size a' ≤ S8x3200.size a')
    (t : Fin 16) (hr : c + t.val < 3200) :
    (Rect.unit (s := S8x3200) off S1x16.size p).toLoadRect.idx (ix2 (0 : Fin 1) t) = ix2 (0 : Fin 8) (⟨c + t.val, hr⟩ : Fin 3200) := by
  subst h
  funext a'; apply Fin.ext
  rw [LoadRect.idx_apply]
  match a' with
  | ⟨0, _⟩ => show 0 + 1 * 0 = 0; omega
  | ⟨1, _⟩ => show c + 1 * t.val = c + t.val; omega

/-- One trip of a lane-copy loop, the offsets given by their closed forms. -/
theorem lanes_step_core (a : Memref sig .scVector .vmem S8x3200 .f32) (b : Memref sig .scVector .vmem S25600 .f32)
    (ga : Buf (Elt F) (a.view.loc (thr d L))) (gb : Buf (Elt F) (b.view.loc (thr d L)))
    (t : ℕ) {off3 : Fin 2 → ℕ} {off4 : Fin 1 → ℕ} (h3 : off3 = ![0, 16 * t]) (h4 : off4 = ![16 * t])
    (p3 : ∀ a', off3 a' + S1x16.size a' ≤ S8x3200.size a') (p4 : ∀ a', off4 a' + S16.size a' ≤ S25600.size a')
    (h : Lanes d L a b ga gb t) :
    Lanes d L a b ga (b.view.writes (Elt F) gb [⟨Rect.unit (s := S25600) off4 S16.size p4,
      shapeCast S16 (a.view.readAt (Elt F) (Rect.unit (s := S8x3200) off3 S1x16.size p3).toLoadRect ga) shapeCasts_S1x16_S16⟩]) (t + 1) := by
  intro r hr hlt
  by_cases hlo : r < 16 * t
  · refine (View.read_writes_cons_unit_of_not_mem b.view gb p4 _ [] _ h4 (0 : Fin 1) (Or.inl ?_)).trans (h r hr hlo)
    show r < 16 * t
    exact hlo
  · have hx : r - 16 * t < 16 := by omega
    refine (View.read_writes_cons_unit_of_mem b.view gb p4 _ [] _ (ix1 (⟨r - 16 * t, hx⟩ : Fin 16)) h4 ?_).trans ?_
    · intro a'
      match a' with
      | ⟨0, _⟩ => show r = 16 * t + (r - 16 * t); omega
    · rw [shapeCast_1a_a_apply, View.readAt_apply, idx_window h3 p3 ⟨r - 16 * t, hx⟩ (by show 16 * t + (r - 16 * t) < 3200; omega)]
      congr 2
      apply Fin.ext
      show 16 * t + (r - 16 * t) = r
      omega

theorem lanes_step (a : Memref sig .scVector .vmem S8x3200 .f32) (b : Memref sig .scVector .vmem S25600 .f32)
    (ga : Buf (Elt F) (a.view.loc (thr d L))) (gb : Buf (Elt F) (b.view.loc (thr d L)))
    (j : Fin k12_t2_loop.trips) (p3 : ∀ a', (k12_off3 j) a' + S1x16.size a' ≤ S8x3200.size a')
    (p4 : ∀ a', (k12_off4 j) a' + S16.size a' ≤ S25600.size a') (h : Lanes d L a b ga gb j.val) :
    Lanes d L a b ga (b.view.writes (Elt F) gb [⟨Rect.unit (s := S25600) (k12_off4 j) S16.size p4,
      k12_pay1 (a.view.readAt (Elt F) (Rect.unit (s := S8x3200) (k12_off3 j) S1x16.size p3).toLoadRect ga)⟩]) (j.val + 1) :=
  lanes_step_core d L a b ga gb j.val (k12_off3_eq j) (k12_off4_eq j) p3 p4 h

theorem lanes_step' (a : Memref sig .scVector .vmem S8x3200 .f32) (b : Memref sig .scVector .vmem S25600 .f32)
    (ga : Buf (Elt F) (a.view.loc (thr d L))) (gb : Buf (Elt F) (b.view.loc (thr d L)))
    (j : Fin k12_t3_loop.trips) (p3 : ∀ a', (k12_off8 j) a' + S1x16.size a' ≤ S8x3200.size a')
    (p4 : ∀ a', (k12_off9 j) a' + S16.size a' ≤ S25600.size a') (h : Lanes d L a b ga gb j.val) :
    Lanes d L a b ga (b.view.writes (Elt F) gb [⟨Rect.unit (s := S25600) (k12_off9 j) S16.size p4,
      k12_pay2 (a.view.readAt (Elt F) (Rect.unit (s := S8x3200) (k12_off8 j) S1x16.size p3).toLoadRect ga)⟩]) (j.val + 1) :=
  lanes_step_core d L a b ga gb j.val (k12_off8_eq j) (k12_off9_eq j) p3 p4 h

/-- Position `y` of the write-out window of the flat staging array is its element `y 0`. -/
theorem stg_emb (y : S3200.Idx) (hy : (y 0).val < 25600) :
    (Rect.unit (s := S25600) ![0] S3200.size inb_S25600_S3200_0).emb y = ix1 (⟨(y 0).val, hy⟩ : Fin 25600) := by
  funext a'; apply Fin.ext
  match a' with
  | ⟨0, _⟩ => show 0 + 1 * (y 0).val = (y 0).val; omega

/-- Position `(0, t)` of row 0 of the staging array is its element `(0, t)`. -/
theorem row_emb (t : Fin 3200) : rowRect.emb (ix2 (0 : Fin 1) t) = ix2 (0 : Fin 8) t := by
  funext a'; apply Fin.ext
  match a' with
  | ⟨0, _⟩ => show 0 + 1 * 0 = 0; omega
  | ⟨1, _⟩ => show 0 + 1 * t.val = t.val; omega

/-- Position `(0, t)` of piece `n` of the argument row is element `(0, pos + t)` of the transposed argument;
    position `y` of piece `n` of the result is element `pos + y 0` of the result. -/
theorem in_emb (n : ℕ) (t : Fin 3200) (h : pos L n + t.val < 1600000) :
    (inM L n).view.emb (ix2 (0 : Fin 1) t) = ix2 (12 : Fin 22) (⟨pos L n + t.val, h⟩ : Fin 1600000) := by
  funext a'; apply Fin.ext
  match a' with
  | ⟨0, _⟩ => show 12 + 1 * 0 = 12; omega
  | ⟨1, _⟩ => show pos L n + 1 * t.val = pos L n + t.val; omega

theorem out_emb (n : ℕ) (y : S3200.Idx) (h : pos L n + (y 0).val < 1600000) :
    (outM L n).view.emb y = ix1 (⟨pos L n + (y 0).val, h⟩ : Fin 1600000) := by
  funext a'; apply Fin.ext
  match a' with
  | ⟨0, _⟩ => show pos L n + 1 * (y 0).val = pos L n + (y 0).val; omega

/-- Both lane-copy loops run 200 trips: 200 · 16 = 3200, the whole row. -/
theorem trips2 : k12_t2_loop.trips = 200 := by decide
theorem trips3 : k12_t3_loop.trips = 200 := by decide

/-- After all its trips a lane-copy loop has copied the whole row. -/
theorem lanes_all (a : Memref sig .scVector .vmem S8x3200 .f32) (b : Memref sig .scVector .vmem S25600 .f32)
    (ga : Buf (Elt F) (a.view.loc (thr d L))) (gb : Buf (Elt F) (b.view.loc (thr d L)))
    (h : Lanes d L a b ga gb k12_t2_loop.trips) : Lanes d L a b ga gb 200 := trips2 ▸ h
theorem lanes_all' (a : Memref sig .scVector .vmem S8x3200 .f32) (b : Memref sig .scVector .vmem S25600 .f32)
    (ga : Buf (Elt F) (a.view.loc (thr d L))) (gb : Buf (Elt F) (b.view.loc (thr d L)))
    (h : Lanes d L a b ga gb k12_t3_loop.trips) : Lanes d L a b ga gb 200 := trips3 ▸ h

/-- The write-out of a piece: the first 3200 elements of the flat staging array, which the 200 lane copies filled from
    row 0 of the staging array, which the fetch filled from piece `n` of row 12 of the transposed argument, land at
    piece `n` of the result, at the same positions of the row. -/
theorem out_written (a : Memref sig .scVector .vmem S8x3200 .f32) (b : Memref sig .scVector .vmem S25600 .f32) (n : ℕ)
    (ga : Buf (Elt F) (a.view.loc (thr d L))) (gb : Buf (Elt F) (b.view.loc (thr d L)))
    (f0 : Buf (Elt F) ((outM L n).view.loc (thr d L))) (w : S3200.Idx → Elt F .f32)
    (hw : ∀ y, w y = (stg b).view.read (Elt F) gb y) (hl : Lanes d L a b ga gb 200) (hr : InRow d L fx a ga n) (hv : valid L n) :
    ∀ i ∈ (outM L n).view.set, ((outM L n).view.writes (Elt F) f0 [⟨Rect.whole _, w⟩]) i = Cert.Spec.row 12 fx i := by
  intro i hi
  obtain ⟨y, -, rfl⟩ := Finset.mem_map.mp hi
  have hy : (y 0).val < 3200 := (y 0).isLt
  have hp : pos L n + (y 0).val < 1600000 := by unfold pos; omega
  have e1 : (outM L n).view.writes (Elt F) f0 [⟨Rect.whole _, w⟩] ((outM L n).view.emb y) = w y := by
    have h := View.read_writes_cons_emb (outM L n).view f0 (Rect.whole _) w [] y
    rw [Rect.emb_whole_apply] at h
    exact (cast_eq _ _).symm.trans ((View.read_apply _ _).symm.trans h)
  have e2 : (stg b).view.read (Elt F) gb y = b.view.read (Elt F) gb (ix1 (⟨(y 0).val, by omega⟩ : Fin 25600)) :=
    congrArg (b.view.read (Elt F) gb) (stg_emb y (by omega))
  have e3 : a.view.read (Elt F) ga (ix2 (0 : Fin 8) (⟨(y 0).val, hy⟩ : Fin 3200))
      = (inM L n).view.read (Elt F) fx (ix2 (0 : Fin 1) (⟨(y 0).val, hy⟩ : Fin 3200)) :=
    (congrArg (a.view.read (Elt F) ga) (row_emb ⟨(y 0).val, hy⟩).symm).trans (hr _)
  have e4 : (inM L n).view.read (Elt F) fx (ix2 (0 : Fin 1) (⟨(y 0).val, hy⟩ : Fin 3200))
      = fx (ix2 (12 : Fin 22) (⟨pos L n + (y 0).val, hp⟩ : Fin 1600000)) :=
    ((View.read_apply _ _).trans (cast_eq _ _)).trans (congrArg fx (in_emb L n ⟨(y 0).val, hy⟩ hp))
  have e5 : Cert.Spec.row 12 fx ((outM L n).view.emb y) = fx (ix2 (12 : Fin 22) (⟨pos L n + (y 0).val, hp⟩ : Fin 1600000)) :=
    (congrArg (Cert.Spec.row 12 fx) (out_emb L n y hp)).trans (Cert.Spec.row_apply 12 fx _)
  exact e1.trans ((hw y).trans (e2.trans ((hl _ hy (by omega)).trans (e3.trans (e4.trans e5.symm)))))

end Cert.Proof.TileBVal12

end
-- ==== Proof.TileB12.lean ====
/-
  One vector subcore's task of copy kernel 12 (counting from 0), run symbolically: the two fetch slots and two write-out slots
  between trips of the main loop (what each transfer in flight will hand back, and what the staging buffers hold), the
  invariant of the main loop and of the two lane-copy loops, and the task's run — from the tile's pieces of row 12 of
  the transposed argument and of the result to the same pieces with the result holding the row's elements.
-/
import proofs.«206869_g37898791420194_cont_8to1_b_558_20_alg».proof.Proof.TileB12Defs
import proofs.«206869_g37898791420194_cont_8to1_b_558_20_alg».proof.Proof.TileBVal12
noncomputable section

namespace Cert.Proof.TileB12

open Cert.Kernel Cert.Kernel.Gen Cert.Proof.TileBVal12
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 22) (Elt F) ℕ UU ℕ
local notation "xtW" => (Memref.whole Cert.Kernel.main_v0_scv : Memref Cert.Kernel.sig Kind.scVector Space.hbm Cert.Kernel.S22x1600000 EltTy.f32)
local notation "oW" => (Memref.whole Cert.Kernel.main_v13_scv : Memref Cert.Kernel.sig Kind.scVector Space.hbm Cert.Kernel.S1600000 EltTy.f32)
local notation "a4" => (Memref.whole Cert.Kernel.cc12_scratch0 : Memref Cert.Kernel.sig Kind.scVector Space.vmem Cert.Kernel.S8x3200 EltTy.f32)
local notation "a5" => (Memref.whole Cert.Kernel.cc12_scratch1 : Memref Cert.Kernel.sig Kind.scVector Space.vmem Cert.Kernel.S8x3200 EltTy.f32)
local notation "a6" => (Memref.whole Cert.Kernel.cc12_scratch2 : Memref Cert.Kernel.sig Kind.scVector Space.vmem Cert.Kernel.S25600 EltTy.f32)
local notation "a7" => (Memref.whole Cert.Kernel.cc12_scratch3 : Memref Cert.Kernel.sig Kind.scVector Space.vmem Cert.Kernel.S25600 EltTy.f32)

variable [FloatOps F]

section Tile

variable (d : Dev nD) (L : grid12.Coords)
variable (O : CellTallies nD τ sig (HIx 22)) (W : Waits sig (HIx 22))
variable (fx : Buf (Elt F) ((xtW).view.loc (thr d L)))

/-- Piece `n` of the result at its final contents. -/
abbrev oqPiece (n : ℕ) : sProp 𝕄 := (outM L n).view.loc (thr d L) ↦[(outM L n).view.set]{fullShare} (Cert.Spec.row 12 fx)
theorem oQ_pos {n : ℕ} (v : valid L n) : oQ d L fx n = oqPiece d L fx n := if_pos v
theorem oQ_neg {n : ℕ} (v : ¬ valid L n) : oQ d L fx n = iprop(emp) := if_neg v

/-- A fetch slot, remembering that the staging row it will hand back holds the piece. -/
def inSlotV (a : Memref sig .scVector .vmem S8x3200 .f32) (sm : DmaSem sig) (n : ℕ) : sProp 𝕄 :=
  if valid L n then
    iprop(∃ g, ⌜InRow d L fx a g n⌝ ∗ Transfers.Flight countersEmb (thr d L) (SemLoc.dma sm) (default : HIx 22) NN
      iprop((a.view.loc (thr d L) ↦{fullShare} g) ∗ xtPiece d L fx n))
  else iprop((∃ g, a.view.loc (thr d L) ↦{fullShare} g) ∗ semVal (thr d L, SemLoc.dma sm) 0)

/-- A write-out slot: the piece in flight will come back holding the row's elements. -/
def outSlotV (a : Memref sig .scVector .vmem S25600 .f32) (sm : DmaSem sig) (m : ℕ) : sProp 𝕄 :=
  if 2 ≤ m ∧ valid L (m - 2) then
    iprop(∃ g, Transfers.Flight countersEmb (thr d L) (SemLoc.dma sm) (default : HIx 22) NN
        iprop(oqPiece d L fx (m - 2) ∗ ((stg a).view.loc (thr d L) ↦[(stg a).view.set]{fullShare} g))
      ∗ (a.view.loc (thr d L) ↦[Finset.univ \ (stg a).view.set]{fullShare} g))
  else iprop((∃ g, a.view.loc (thr d L) ↦{fullShare} g) ∗ semVal (thr d L, SemLoc.dma sm) 0)

theorem inSlotV_pos {a : Memref sig .scVector .vmem S8x3200 .f32} {sm : DmaSem sig} {n : ℕ} (v : valid L n) :
    inSlotV d L fx a sm n = iprop(∃ g, ⌜InRow d L fx a g n⌝ ∗ Transfers.Flight countersEmb (thr d L) (SemLoc.dma sm) (default : HIx 22) NN
      iprop((a.view.loc (thr d L) ↦{fullShare} g) ∗ xtPiece d L fx n)) := by unfold inSlotV; rw [if_pos v]
theorem inSlotV_neg {a : Memref sig .scVector .vmem S8x3200 .f32} {sm : DmaSem sig} {n : ℕ} (v : ¬ valid L n) :
    inSlotV d L fx a sm n = iprop((∃ g, a.view.loc (thr d L) ↦{fullShare} g) ∗ semVal (thr d L, SemLoc.dma sm) 0) := by
  unfold inSlotV; rw [if_neg v]
theorem outSlotV_pos {a : Memref sig .scVector .vmem S25600 .f32} {sm : DmaSem sig} {m : ℕ} (h : 2 ≤ m ∧ valid L (m - 2)) :
    outSlotV d L fx a sm m = iprop(∃ g, Transfers.Flight countersEmb (thr d L) (SemLoc.dma sm) (default : HIx 22) NN
        iprop(oqPiece d L fx (m - 2) ∗ ((stg a).view.loc (thr d L) ↦[(stg a).view.set]{fullShare} g))
      ∗ (a.view.loc (thr d L) ↦[Finset.univ \ (stg a).view.set]{fullShare} g)) := by unfold outSlotV; rw [if_pos h]
theorem outSlotV_neg {a : Memref sig .scVector .vmem S25600 .f32} {sm : DmaSem sig} {m : ℕ} (h : ¬ (2 ≤ m ∧ valid L (m - 2))) :
    outSlotV d L fx a sm m = iprop((∃ g, a.view.loc (thr d L) ↦{fullShare} g) ∗ semVal (thr d L, SemLoc.dma sm) 0) := by
  unfold outSlotV; rw [if_neg h]

/-- A fetch just issued: the staging row will hold what the transfer reads, which is the piece. -/
theorem fl_inV {off : Fin 2 → ℕ} {n : ℕ} (h : off = ![12, pos L n]) (p : ∀ a, off a + S1x3200.size a ≤ S22x1600000.size a) (v : valid L n)
    (a : Memref sig .scVector .vmem S8x3200 .f32) (sm : DmaSem sig) :
    (iprop(∃ (gold : Buf (Elt F) (a.view.loc (thr d L))) (w : S1x3200.Idx → Elt F .f32),
        ⌜∀ y, w y = ((xtW).slice (Rect.unit (s := S22x1600000) off S1x3200.size p) (fun _ => rfl)).view.read (Elt F) fx y⌝
        ∗ Transfers.Flight countersEmb (thr d L) (SemLoc.dma sm) (default : HIx 22) NN
          iprop((a.view.loc (thr d L) ↦{fullShare} a.view.writes (Elt F) gold [⟨rowRect, w⟩])
            ∗ (((xtW).slice (Rect.unit (s := S22x1600000) off S1x3200.size p) (fun _ => rfl)).view.loc (thr d L)
                ↦[((xtW).slice (Rect.unit (s := S22x1600000) off S1x3200.size p) (fun _ => rfl)).view.set]{fullShare} fx))) : sProp 𝕄)
      ⊢ inSlotV d L fx a sm n := by
  subst h
  rw [inSlotV_pos d L fx v]
  iintro ⟨%gold, %w, %hw, H⟩
  iexists _
  isplitr
  · ipureintro; exact inRow_fetch d L fx a gold w n hw
  · iexact H

set_option maxHeartbeats 4000000 in
/-- A write-out just issued from a flat staging buffer whose first 3200 elements are the staging row, itself piece
    `n` of the argument row: the piece of the result will hold the row's elements. -/
theorem fl_outV {off : Fin 1 → ℕ} {n : ℕ} (h : off = ![pos L n]) (p : ∀ a, off a + S3200.size a ≤ S1600000.size a) (v : valid L n)
    (ar : Memref sig .scVector .vmem S8x3200 .f32) (a : Memref sig .scVector .vmem S25600 .f32) (sm : DmaSem sig)
    (f0 : Buf (Elt F) ((oW).view.loc (thr d L))) (ga : Buf (Elt F) (ar.view.loc (thr d L))) (gb : Buf (Elt F) (a.view.loc (thr d L)))
    (hl : Lanes d L ar a ga gb 200) (hr : InRow d L fx ar ga n) :
    (iprop(∃ (w : S3200.Idx → Elt F .f32),
        ⌜∀ y, w y = (stg a).view.read (Elt F) gb y⌝
        ∗ Transfers.Flight countersEmb (thr d L) (SemLoc.dma sm) (default : HIx 22) NN
          iprop((((oW).slice (Rect.unit (s := S1600000) off S3200.size p) (fun _ => rfl)).view.loc (thr d L)
                ↦[((oW).slice (Rect.unit (s := S1600000) off S3200.size p) (fun _ => rfl)).view.set]{fullShare}
                  (((oW).slice (Rect.unit (s := S1600000) off S3200.size p) (fun _ => rfl)).view.writes (Elt F) f0 [⟨Rect.whole _, w⟩]))
            ∗ ((stg a).view.loc (thr d L) ↦[(stg a).view.set]{fullShare} gb))
        ∗ (a.view.loc (thr d L) ↦[Finset.univ \ (stg a).view.set]{fullShare} gb)) : sProp 𝕄)
      ⊢ outSlotV d L fx a sm (n + 2) := by
  subst h
  rw [outSlotV_pos d L fx (m := n + 2) ⟨by omega, by simpa using v⟩]
  iintro ⟨%w, %hw, H, R⟩
  have hD : (iprop(((outM L n).view.loc (thr d L) ↦[(outM L n).view.set]{fullShare} ((outM L n).view.writes (Elt F) f0 [⟨Rect.whole _, w⟩]))
          ∗ ((stg a).view.loc (thr d L) ↦[(stg a).view.set]{fullShare} gb)) : sProp 𝕄)
      ⊢ iprop(oqPiece d L fx (n + 2 - 2) ∗ ((stg a).view.loc (thr d L) ↦[(stg a).view.set]{fullShare} gb)) := by
    rw [Nat.add_sub_cancel]
    have e : (((outM L n).view.loc (thr d L) ↦[(outM L n).view.set]{fullShare} ((outM L n).view.writes (Elt F) f0 [⟨Rect.whole _, w⟩])) : sProp 𝕄)
        = oqPiece d L fx n := pointsTo_congr (out_written d L fx ar a n ga gb f0 w hw hl hr v)
    iintro ⟨H1, H2⟩
    isplitl [H1]
    · iapply (Entails.of_eq e); iexact H1
    · iexact H2
  iexists gb
  isplitl [H]
  · iapply (Transfers.Flight_mono countersEmb (thr d L) hD); iexact H
  · iexact R

/-- The result pieces outside the slots before trip `t`: those already written hold the row, the others some contents. -/
def oMix (t n : ℕ) : sProp 𝕄 := if n + 2 < 2 * t then oQ d L fx n else oP (F := F) d L n
theorem oMix_lt {t n : ℕ} (h : n + 2 < 2 * t) : oMix d L fx t n = oQ d L fx n := if_pos h
theorem oMix_ge {t n : ℕ} (h : ¬ n + 2 < 2 * t) : oMix d L fx t n = oP (F := F) d L n := if_neg h
theorem oMix_core (k : ℕ) : bigSep (oCore k) (oMix d L fx k) = bigSep (oCore k) (oMix d L fx (k + 1)) :=
  bigSep_congr fun n hn => by
    have hn' : n + 2 ≠ 2 * k ∧ n + 2 ≠ 2 * k + 1 ∧ n ≠ 2 * k ∧ n ≠ 2 * k + 1 := by
      simp only [oCore, Finset.mem_filter, Finset.mem_range] at hn; exact hn.2
    by_cases h : n + 2 < 2 * k
    · rw [oMix_lt d L fx h, oMix_lt d L fx (by omega)]
    · rw [oMix_ge d L fx h, oMix_ge d L fx (by omega)]
theorem oMix_zero : bigSep (oSet 0) (oMix d L fx 0) = bigSep (Finset.range 18) (oP (F := F) d L) := by
  rw [oSet_zero]; exact bigSep_congr fun n _ => oMix_ge d L fx (by omega)
theorem oMix_end : bigSep (oSet 8) (oMix d L fx 8) = bigSep (oSet 8) (oQ d L fx) :=
  bigSep_congr fun n hn => by
    have hn' : n < 18 ∧ n + 2 ≠ 16 ∧ n + 2 ≠ 17 := by simpa only [oSet, Finset.mem_filter, Finset.mem_range] using hn
    by_cases h : n + 2 < 2 * 8
    · exact oMix_lt d L fx h
    · rw [oMix_ge d L fx h, oP_neg (F := F) d L (by unfold valid; omega), oQ_neg d L fx (by unfold valid; omega)]

/-- The lane-copy loops: before trip `j` the first 16·j elements of the flat staging buffer are the staging row's. -/
def laneV0 (g4 : Buf (Elt F) ((a4).view.loc (thr d L))) (j : ℕ) (_ : PUnit) : sProp 𝕄 :=
  iprop(((a4).view.loc (thr d L) ↦{fullShare} g4) ∗ (∃ g, ((a6).view.loc (thr d L) ↦{fullShare} g) ∗ ⌜Lanes d L a4 a6 g4 g j⌝))
def laneV1 (g5 : Buf (Elt F) ((a5).view.loc (thr d L))) (j : ℕ) (_ : PUnit) : sProp 𝕄 :=
  iprop(((a5).view.loc (thr d L) ↦{fullShare} g5) ∗ (∃ g, ((a7).view.loc (thr d L) ↦{fullShare} g) ∗ ⌜Lanes d L a5 a7 g5 g j⌝))

def invV (t : ℕ) (_ : PUnit) : sProp 𝕄 :=
  iprop(Transfers.MayWaits (thr d L) (none : HIx 22) O
    ∗ (∃ W', ⌜∀ p ∈ W', p ∈ W ∨ p.2 = none⌝ ∗ owes (thr d L) O W')
    ∗ bigSep (xSet t) (xP d L fx) ∗ bigSep (oSet t) (oMix d L fx t)
    ∗ inSlotV d L fx a4 cc12_scratch4.sem (2 * t) ∗ outSlotV d L fx a6 cc12_scratch6.sem (2 * t)
    ∗ inSlotV d L fx a5 cc12_scratch5.sem (2 * t + 1) ∗ outSlotV d L fx a7 cc12_scratch7.sem (2 * t + 1))

/-- After the last trip nothing of the argument row is in a slot: the tile holds all its pieces. -/
theorem xRange_end : bigSep (xSet 8) (xP d L fx) ⊢ bigSep (Finset.range 18) (xP d L fx) := by
  rw [two_out (s := Finset.range 18) (a := 16) (b := 17) (by decide) (by decide) (by decide),
    show ((Finset.range 18).erase 16).erase 17 = xSet 8 by decide]
  iintro H
  isplitr; · iapply (Entails.of_eq (xP_neg d L fx (n := 16) (by unfold valid; omega)).symm); iempintro
  isplitr; · iapply (Entails.of_eq (xP_neg d L fx (n := 17) (by unfold valid; omega)).symm); iempintro
  iexact H
omit [FloatOps F] in
theorem oRange_end (Φ : ℕ → sProp 𝕄) : bigSep (Finset.range 18) Φ = iprop(Φ 14 ∗ Φ 15 ∗ bigSep (oSet 8) Φ) := by
  rw [two_out (s := Finset.range 18) (a := 14) (b := 15) (by decide) (by decide) (by decide),
    show ((Finset.range 18).erase 14).erase 15 = oSet 8 by decide]

/-- What the run starts from and ends with, beside an untouched rest `R`. -/
def runPre (R : sProp 𝕄) : sProp 𝕄 :=
    iprop(Transfers.MayWaits (thr d L) (none : HIx 22) O ∗ owes (thr d L) O W
        ∗ bigSep (Finset.range 18) (xP d L fx) ∗ bigSep (Finset.range 18) (oP (F := F) d L)
        ∗ (∃ g, (a4).view.loc (thr d L) ↦{fullShare} g) ∗ (∃ g, (a5).view.loc (thr d L) ↦{fullShare} g)
        ∗ (∃ g, (a6).view.loc (thr d L) ↦{fullShare} g) ∗ (∃ g, (a7).view.loc (thr d L) ↦{fullShare} g)
        ∗ semVal (thr d L, SemLoc.dma cc12_scratch4.sem) 0 ∗ semVal (thr d L, SemLoc.dma cc12_scratch5.sem) 0
        ∗ semVal (thr d L, SemLoc.dma cc12_scratch6.sem) 0 ∗ semVal (thr d L, SemLoc.dma cc12_scratch7.sem) 0 ∗ R)
def runPost (R : sProp 𝕄) : sProp 𝕄 :=
    iprop(bigSep (Finset.range 18) (xP d L fx) ∗ bigSep (Finset.range 18) (oQ d L fx)
            ∗ (∃ g, (a4).view.loc (thr d L) ↦{fullShare} g) ∗ (∃ g, (a5).view.loc (thr d L) ↦{fullShare} g)
            ∗ (∃ g, (a6).view.loc (thr d L) ↦{fullShare} g) ∗ (∃ g, (a7).view.loc (thr d L) ↦{fullShare} g)
            ∗ semVal (thr d L, SemLoc.dma cc12_scratch4.sem) 0 ∗ semVal (thr d L, SemLoc.dma cc12_scratch5.sem) 0
            ∗ semVal (thr d L, SemLoc.dma cc12_scratch6.sem) 0 ∗ semVal (thr d L, SemLoc.dma cc12_scratch7.sem) 0
            ∗ (∃ W', ⌜∀ p ∈ W', p ∈ W ∨ p.2 = none⌝ ∗ owes (thr d L) O W') ∗ R)

set_option maxHeartbeats 16000000 in
/-- The task's run: from its pieces of the argument row and of the result, the four staging buffers and the four
    semaphores at zero, to the same with every piece of the result holding the row's elements. -/
theorem tile_run (R : sProp 𝕄) :
    runPre d L O W fx R
      ⊢ wp frame (wpE (defs₀ (F := F)) 𝒱₀ (thr d L) none) Set.univ
          (cc12_sc_group L xtW (Memref.isWhole_whole _) oW (Memref.isWhole_whole _) a4 (Memref.isWhole_whole _) a5 (Memref.isWhole_whole _)
            a6 (Memref.isWhole_whole _) a7 (Memref.isWhole_whole _) cc12_scratch4 cc12_scratch5 cc12_scratch6 cc12_scratch7)
          fun _ => runPost d L O W fx R := by
  unfold runPre runPost
  have v0 : valid L 0 := Or.inl (by omega)
  have v1 : valid L 1 := Or.inl (by omega)
  have k12_h7 : k12_cond7 L = 1#1 := cond7_iff L
  iintro ⟨#Hmw, HO, HX, HOut, ⟨%g4, H4⟩, ⟨%g5, H5⟩, ⟨%g6, H6⟩, ⟨%g7, H7⟩, Hs8, Hs9, Hs10, Hs11, HR⟩
  ihave HX := (Entails.of_eq (xRange_split d L fx v0 v1)) $$ HX
  icases HX with ⟨X0, X1, HX⟩
  ihave X0 := (Entails.of_eq (in_congr d L (off_in0 L v0).symm (in_inb L _) (k12_off1_inb L 0) fx)) $$ X0
  ihave X1 := (Entails.of_eq (in_congr d L (off_in1 L v1).symm (in_inb L _) (k12_off1_inb L 1) fx)) $$ X1
  sl_unfold [cc12_sc_group]
  sl_exec
  ihave S8 := (fl_inV d L fx (off_in0 L v0) (k12_off1_inb L 0) v0 a4 cc12_scratch4.sem) $$ [Hs8]
  · iexists _, _
    isplitr
    rotate_left
    · iexact Hs8
    ipureintro; intro y; rfl
  ihave S9 := (fl_inV d L fx (off_in1 L v1) (k12_off1_inb L 1) v1 a5 cc12_scratch5.sem) $$ [Hs9]
  · iexists _, _
    isplitr
    rotate_left
    · iexact Hs9
    ipureintro; intro y; rfl
  sl_for (invV d L O W fx) $$ [HO HX HOut S8 S9 H6 H7 Hs10 Hs11]
  case region =>
    intro (k : Fin k12_t1_loop.trips) acc
    have hk : k.val < 8 := Nat.lt_of_lt_of_eq k.isLt trips1
    unfold invV
    iintro ⟨#Hmw, ⟨%W', %hW', HO⟩, HX, HOut, S8, S10, S9, S11⟩
    by_cases hk1 : 1 ≤ k.val
    · by_cases v3 : valid L (2 * k.val + 3)
      · -- the generic trip: both drains, both pieces worked, both next fetches issued
        have hk6 : k.val ≤ 6 := by unfold valid at v3; omega
        have k12_h1 : k12_cond1 k = 1#1 := (cond1_iff k).mpr (by omega)
        have k12_h2 : k12_cond2 L k = 1#1 := cond2_iff L k
        have k12_h3 : k12_cond3 L k = 1#1 := (cond3_iff L k).mpr (by omega)
        have k12_h4 : k12_cond4 k = 1#1 := (cond4_iff k).mpr (by omega)
        have k12_h5 : k12_cond5 L k = 1#1 := (cond5_iff L k).mpr (by first | (unfold valid big at *; omega) | (unfold big at *; omega) | omega)
        have k12_h6 : k12_cond6 L k = 1#1 := (cond6_iff L k).mpr (by first | (unfold valid big at *; omega) | (unfold big at *; omega) | omega)
        have v0 : valid L (2 * k.val) := by unfold valid big at *; omega
        have v1 : valid L (2 * k.val + 1) := by unfold valid big at *; omega
        have v2 : valid L (2 * k.val + 2) := by unfold valid big at *; omega
        have v3' : valid L (2 * k.val + 3) := by unfold valid big at *; omega
        have hm0 : 2 ≤ 2 * k.val ∧ valid L (2 * k.val - 2) := ⟨by omega, by unfold valid big at *; omega⟩
        have hm1 : 2 ≤ 2 * k.val + 1 ∧ valid L (2 * k.val + 1 - 2) := ⟨by omega, by unfold valid big at *; omega⟩
        ihave S8 := (Entails.of_eq (inSlotV_pos d L fx v0)) $$ S8
        icases S8 with ⟨%g4, %hin4, F8⟩
        ihave S9 := (Entails.of_eq (inSlotV_pos d L fx v1)) $$ S9
        icases S9 with ⟨%g5, %hin5, F9⟩
        ihave S10 := (Entails.of_eq (outSlotV_pos d L fx hm0)) $$ S10
        icases S10 with ⟨%g6, F10, R6⟩
        ihave S11 := (Entails.of_eq (outSlotV_pos d L fx hm1)) $$ S11
        icases S11 with ⟨%g7, F11, R7⟩
        ihave HX := (Entails.of_eq (xSet_out (xP d L fx) k.val hk)) $$ HX
        icases HX with ⟨X2, X3, HX⟩
        ihave X2 := (Entails.of_eq (xP_pos d L fx v2)) $$ X2
        ihave X2 := (Entails.of_eq (in_congr d L (off_6 L k v2).symm (in_inb L _) (k12_off6_inb L k k12_h3) fx)) $$ X2
        ihave X3 := (Entails.of_eq (xP_pos d L fx v3')) $$ X3
        ihave X3 := (Entails.of_eq (in_congr d L (off_11 L k v3').symm (in_inb L _) (k12_off11_inb L k k12_h6) fx)) $$ X3
        ihave HOut := (Entails.of_eq (oSet_out (oMix d L fx k.val) k.val hk)) $$ HOut
        icases HOut with ⟨Y0, Y1, HOut⟩
        ihave Y0 := (Entails.of_eq ((oMix_ge d L fx (t := k.val) (n := 2 * k.val) (by omega)).trans (oP_pos (F := F) d L v0))) $$ Y0
        icases Y0 with ⟨%f0, Y0⟩
        ihave Y0 := (Entails.of_eq (out_congr d L (off_5 L k v0).symm (out_inb L _) (k12_off5_inb L k k12_h2) f0)) $$ Y0
        ihave Y1 := (Entails.of_eq ((oMix_ge d L fx (t := k.val) (n := 2 * k.val + 1) (by omega)).trans (oP_pos (F := F) d L v1))) $$ Y1
        icases Y1 with ⟨%f1, Y1⟩
        ihave Y1 := (Entails.of_eq (out_congr d L (off_10 L k v1).symm (out_inb L _) (k12_off10_inb L k k12_h5) f1)) $$ Y1
        sl_exec
        sl_for (laneV0 d L g4) $$ [F8_dst R6]
        case region =>
          intro (j : Fin k12_t2_loop.trips) _
          unfold laneV0
          iintro ⟨HA, %g, HB, %hl⟩
          sl_exec
          sl_step
          isplitl [HA]; · iexact HA
          iexists _; isplitl [HB]; · iexact HB
          ipureintro; exact lanes_step d L a4 a6 g4 g j _ _ hl
        · unfold laneV0
          isplitl [F8_dst]; · iexact F8_dst
          iexists _; isplitl [R6]; · iexact R6
          ipureintro; exact lanes_zero d L a4 a6 g4 _
        iintro %_ HI
        unfold laneV0
        icases HI with ⟨H4, %g6', H6, %hl6⟩
        have hl6 : Lanes d L a4 a6 g4 g6' 200 := Eq.mp (congrArg (Lanes d L a4 a6 g4 g6') trips2) hl6
        sl_exec
        sl_for (laneV1 d L g5) $$ [F9_dst R7]
        case region =>
          intro (j : Fin k12_t3_loop.trips) _
          unfold laneV1
          iintro ⟨HA, %g, HB, %hl⟩
          sl_exec
          sl_step
          isplitl [HA]; · iexact HA
          iexists _; isplitl [HB]; · iexact HB
          ipureintro; exact lanes_step' d L a5 a7 g5 g j _ _ hl
        · unfold laneV1
          isplitl [F9_dst]; · iexact F9_dst
          iexists _; isplitl [R7]; · iexact R7
          ipureintro; exact lanes_zero d L a5 a7 g5 _
        iintro %_ HI
        unfold laneV1
        icases HI with ⟨H5, %g7', H7, %hl7⟩
        have hl7 : Lanes d L a5 a7 g5 g7' 200 := Eq.mp (congrArg (Lanes d L a5 a7 g5 g7') trips3) hl7
        sl_exec
        sl_step
        isplitr; · iexact Hmw
        isplitl [HO]
        · iexists _; isplitr
          rotate_left
          · iexact HO
          ipureintro; intro p hp
          rcases Finset.mem_insert.mp hp with rfl | hp
          · exact .inr rfl
          rcases Finset.mem_insert.mp hp with rfl | hp
          · exact .inr rfl
          rcases Finset.mem_insert.mp hp with rfl | hp
          · exact .inr rfl
          rcases Finset.mem_insert.mp hp with rfl | hp
          · exact .inr rfl
          exact hW' p hp
        isplitl [HX F8_src F9_src]
        · iapply (Entails.of_eq (xSet_in (xP d L fx) k.val hk).symm)
          isplitl [F8_src]; · iapply (Entails.of_eq (xP_pos d L fx v0).symm); iexact F8_src
          isplitl [F9_src]; · iapply (Entails.of_eq (xP_pos d L fx v1).symm); iexact F9_src
          iexact HX
        isplitl [HOut F10_dst F11_dst]
        · iapply (Entails.of_eq (oSet_in (oMix d L fx (k.val + 1)) k.val hk (by omega)).symm)
          isplitl [F10_dst]; · iapply (Entails.of_eq ((oMix_lt d L fx (t := k.val + 1) (n := 2 * k.val - 2) (by omega)).trans (oQ_pos d L fx hm0.2)).symm); iexact F10_dst
          isplitl [F11_dst]
          · iapply (Entails.of_eq ((oMix_lt d L fx (t := k.val + 1) (n := 2 * k.val - 1) (by omega)).trans (oQ_pos d L fx (n := 2 * k.val - 1) (by have := hm1.2; rwa [show 2 * k.val + 1 - 2 = 2 * k.val - 1 by omega] at this))).symm)
            iapply (Entails.of_eq (congrArg (oqPiece d L fx) (show 2 * k.val + 1 - 2 = 2 * k.val - 1 by omega))); iexact F11_dst
          iapply (Entails.of_eq (oMix_core d L fx k.val)); iexact HOut
        isplitl [F8]
        · iapply (Entails.of_eq (congrArg (inSlotV d L fx a4 cc12_scratch4.sem) (show 2 * k.val + 2 = 2 * (k.val + 1) by ring)))
          iapply (fl_inV d L fx (off_6 L k v2) (k12_off6_inb L k k12_h3) v2 a4 cc12_scratch4.sem); iexists _, _
          isplitr
          rotate_left
          · iexact F8
          ipureintro; intro y; rfl
        isplitl [F10 H6]
        · iapply (Entails.of_eq (congrArg (outSlotV d L fx a6 cc12_scratch6.sem) (show 2 * k.val + 2 = 2 * (k.val + 1) by ring)))
          iapply (fl_outV d L fx (off_5 L k v0) (k12_off5_inb L k k12_h2) v0 a4 a6 cc12_scratch6.sem f0 g4 g6' hl6 hin4); iexists _
          isplitr
          rotate_left
          · isplitl [F10]; · iexact F10
            iexact H6
          ipureintro; intro y; rfl
        isplitl [F9]
        · iapply (Entails.of_eq (congrArg (inSlotV d L fx a5 cc12_scratch5.sem) (show 2 * k.val + 3 = 2 * (k.val + 1) + 1 by ring)))
          iapply (fl_inV d L fx (off_11 L k v3') (k12_off11_inb L k k12_h6) v3' a5 cc12_scratch5.sem); iexists _, _
          isplitr
          rotate_left
          · iexact F9
          ipureintro; intro y; rfl
        · iapply (Entails.of_eq (congrArg (outSlotV d L fx a7 cc12_scratch7.sem) (show 2 * k.val + 1 + 2 = 2 * (k.val + 1) + 1 by ring)))
          iapply (fl_outV d L fx (off_10 L k v1) (k12_off10_inb L k k12_h5) v1 a5 a7 cc12_scratch7.sem f1 g5 g7' hl7 hin5); iexists _
          isplitr
          rotate_left
          · isplitl [F11]; · iexact F11
            iexact H7
          ipureintro; intro y; rfl
      · by_cases h6 : k.val = 6
        · have hb : ¬ big L := fun hb => v3 (Or.inr ⟨by omega, hb⟩)
          -- trip 6 of a tile with fifteen pieces: no sixteenth piece to fetch
          have k12_h1 : k12_cond1 k = 1#1 := (cond1_iff k).mpr (by omega)
          have k12_h2 : k12_cond2 L k = 1#1 := cond2_iff L k
          have k12_h3 : k12_cond3 L k = 1#1 := (cond3_iff L k).mpr (by omega)
          have k12_h4 : k12_cond4 k = 1#1 := (cond4_iff k).mpr (by omega)
          have k12_h5 : k12_cond5 L k = 1#1 := (cond5_iff L k).mpr (by first | (unfold valid big at *; omega) | (unfold big at *; omega) | omega)
          have k12_h6 : ¬ k12_cond6 L k = 1#1 := fun h => absurd ((cond6_iff L k).mp h) (by first | (unfold valid big at *; omega) | (unfold big at *; omega) | omega)
          have v0 : valid L (2 * k.val) := by unfold valid big at *; omega
          have v1 : valid L (2 * k.val + 1) := by unfold valid big at *; omega
          have v2 : valid L (2 * k.val + 2) := by unfold valid big at *; omega
          have v3' : ¬ valid L (2 * k.val + 3) := by unfold valid big at *; omega
          have hm0 : 2 ≤ 2 * k.val ∧ valid L (2 * k.val - 2) := ⟨by omega, by unfold valid big at *; omega⟩
          have hm1 : 2 ≤ 2 * k.val + 1 ∧ valid L (2 * k.val + 1 - 2) := ⟨by omega, by unfold valid big at *; omega⟩
          ihave S8 := (Entails.of_eq (inSlotV_pos d L fx v0)) $$ S8
          icases S8 with ⟨%g4, %hin4, F8⟩
          ihave S9 := (Entails.of_eq (inSlotV_pos d L fx v1)) $$ S9
          icases S9 with ⟨%g5, %hin5, F9⟩
          ihave S10 := (Entails.of_eq (outSlotV_pos d L fx hm0)) $$ S10
          icases S10 with ⟨%g6, F10, R6⟩
          ihave S11 := (Entails.of_eq (outSlotV_pos d L fx hm1)) $$ S11
          icases S11 with ⟨%g7, F11, R7⟩
          ihave HX := (Entails.of_eq (xSet_out (xP d L fx) k.val hk)) $$ HX
          icases HX with ⟨X2, -, HX⟩
          ihave X2 := (Entails.of_eq (xP_pos d L fx v2)) $$ X2
          ihave X2 := (Entails.of_eq (in_congr d L (off_6 L k v2).symm (in_inb L _) (k12_off6_inb L k k12_h3) fx)) $$ X2
          ihave HOut := (Entails.of_eq (oSet_out (oMix d L fx k.val) k.val hk)) $$ HOut
          icases HOut with ⟨Y0, Y1, HOut⟩
          ihave Y0 := (Entails.of_eq ((oMix_ge d L fx (t := k.val) (n := 2 * k.val) (by omega)).trans (oP_pos (F := F) d L v0))) $$ Y0
          icases Y0 with ⟨%f0, Y0⟩
          ihave Y0 := (Entails.of_eq (out_congr d L (off_5 L k v0).symm (out_inb L _) (k12_off5_inb L k k12_h2) f0)) $$ Y0
          ihave Y1 := (Entails.of_eq ((oMix_ge d L fx (t := k.val) (n := 2 * k.val + 1) (by omega)).trans (oP_pos (F := F) d L v1))) $$ Y1
          icases Y1 with ⟨%f1, Y1⟩
          ihave Y1 := (Entails.of_eq (out_congr d L (off_10 L k v1).symm (out_inb L _) (k12_off10_inb L k k12_h5) f1)) $$ Y1
          sl_exec
          sl_for (laneV0 d L g4) $$ [F8_dst R6]
          case region =>
            intro (j : Fin k12_t2_loop.trips) _
            unfold laneV0
            iintro ⟨HA, %g, HB, %hl⟩
            sl_exec
            sl_step
            isplitl [HA]; · iexact HA
            iexists _; isplitl [HB]; · iexact HB
            ipureintro; exact lanes_step d L a4 a6 g4 g j _ _ hl
          · unfold laneV0
            isplitl [F8_dst]; · iexact F8_dst
            iexists _; isplitl [R6]; · iexact R6
            ipureintro; exact lanes_zero d L a4 a6 g4 _
          iintro %_ HI
          unfold laneV0
          icases HI with ⟨H4, %g6', H6, %hl6⟩
          have hl6 : Lanes d L a4 a6 g4 g6' 200 := Eq.mp (congrArg (Lanes d L a4 a6 g4 g6') trips2) hl6
          sl_exec
          sl_for (laneV1 d L g5) $$ [F9_dst R7]
          case region =>
            intro (j : Fin k12_t3_loop.trips) _
            unfold laneV1
            iintro ⟨HA, %g, HB, %hl⟩
            sl_exec
            sl_step
            isplitl [HA]; · iexact HA
            iexists _; isplitl [HB]; · iexact HB
            ipureintro; exact lanes_step' d L a5 a7 g5 g j _ _ hl
          · unfold laneV1
            isplitl [F9_dst]; · iexact F9_dst
            iexists _; isplitl [R7]; · iexact R7
            ipureintro; exact lanes_zero d L a5 a7 g5 _
          iintro %_ HI
          unfold laneV1
          icases HI with ⟨H5, %g7', H7, %hl7⟩
          have hl7 : Lanes d L a5 a7 g5 g7' 200 := Eq.mp (congrArg (Lanes d L a5 a7 g5 g7') trips3) hl7
          sl_exec
          sl_step
          isplitr; · iexact Hmw
          isplitl [HO]
          · iexists _; isplitr
            rotate_left
            · iexact HO
            ipureintro; intro p hp
            rcases Finset.mem_insert.mp hp with rfl | hp
            · exact .inr rfl
            rcases Finset.mem_insert.mp hp with rfl | hp
            · exact .inr rfl
            rcases Finset.mem_insert.mp hp with rfl | hp
            · exact .inr rfl
            rcases Finset.mem_insert.mp hp with rfl | hp
            · exact .inr rfl
            exact hW' p hp
          isplitl [HX F8_src F9_src]
          · iapply (Entails.of_eq (xSet_in (xP d L fx) k.val hk).symm)
            isplitl [F8_src]; · iapply (Entails.of_eq (xP_pos d L fx v0).symm); iexact F8_src
            isplitl [F9_src]; · iapply (Entails.of_eq (xP_pos d L fx v1).symm); iexact F9_src
            iexact HX
          isplitl [HOut F10_dst F11_dst]
          · iapply (Entails.of_eq (oSet_in (oMix d L fx (k.val + 1)) k.val hk (by omega)).symm)
            isplitl [F10_dst]; · iapply (Entails.of_eq ((oMix_lt d L fx (t := k.val + 1) (n := 2 * k.val - 2) (by omega)).trans (oQ_pos d L fx hm0.2)).symm); iexact F10_dst
            isplitl [F11_dst]
            · iapply (Entails.of_eq ((oMix_lt d L fx (t := k.val + 1) (n := 2 * k.val - 1) (by omega)).trans (oQ_pos d L fx (n := 2 * k.val - 1) (by have := hm1.2; rwa [show 2 * k.val + 1 - 2 = 2 * k.val - 1 by omega] at this))).symm)
              iapply (Entails.of_eq (congrArg (oqPiece d L fx) (show 2 * k.val + 1 - 2 = 2 * k.val - 1 by omega))); iexact F11_dst
            iapply (Entails.of_eq (oMix_core d L fx k.val)); iexact HOut
          isplitl [F8]
          · iapply (Entails.of_eq (congrArg (inSlotV d L fx a4 cc12_scratch4.sem) (show 2 * k.val + 2 = 2 * (k.val + 1) by ring)))
            iapply (fl_inV d L fx (off_6 L k v2) (k12_off6_inb L k k12_h3) v2 a4 cc12_scratch4.sem); iexists _, _
            isplitr
            rotate_left
            · iexact F8
            ipureintro; intro y; rfl
          isplitl [F10 H6]
          · iapply (Entails.of_eq (congrArg (outSlotV d L fx a6 cc12_scratch6.sem) (show 2 * k.val + 2 = 2 * (k.val + 1) by ring)))
            iapply (fl_outV d L fx (off_5 L k v0) (k12_off5_inb L k k12_h2) v0 a4 a6 cc12_scratch6.sem f0 g4 g6' hl6 hin4); iexists _
            isplitr
            rotate_left
            · isplitl [F10]; · iexact F10
              iexact H6
            ipureintro; intro y; rfl
          isplitl [H5 F9]
          · iapply (Entails.of_eq (congrArg (inSlotV d L fx a5 cc12_scratch5.sem) (show 2 * k.val + 3 = 2 * (k.val + 1) + 1 by ring)))
            iapply (Entails.of_eq (inSlotV_neg d L fx v3').symm)
            isplitl [H5]; · iexists _; iexact H5
            iexact F9
          · iapply (Entails.of_eq (congrArg (outSlotV d L fx a7 cc12_scratch7.sem) (show 2 * k.val + 1 + 2 = 2 * (k.val + 1) + 1 by ring)))
            iapply (fl_outV d L fx (off_10 L k v1) (k12_off10_inb L k k12_h5) v1 a5 a7 cc12_scratch7.sem f1 g5 g7' hl7 hin5); iexists _
            isplitr
            rotate_left
            · isplitl [F11]; · iexact F11
              iexact H7
            ipureintro; intro y; rfl
        · have h7 : k.val = 7 := by unfold valid at v3; omega
          by_cases hb : big L
          · -- the last trip of a tile with sixteen pieces: nothing more to fetch
            have k12_h1 : k12_cond1 k = 1#1 := (cond1_iff k).mpr (by omega)
            have k12_h2 : k12_cond2 L k = 1#1 := cond2_iff L k
            have k12_h3 : ¬ k12_cond3 L k = 1#1 := fun h => absurd ((cond3_iff L k).mp h) (by omega)
            have k12_h4 : k12_cond4 k = 1#1 := (cond4_iff k).mpr (by omega)
            have k12_h5 : k12_cond5 L k = 1#1 := (cond5_iff L k).mpr (by first | (unfold valid big at *; omega) | (unfold big at *; omega) | omega)
            have k12_h6 : ¬ k12_cond6 L k = 1#1 := fun h => absurd ((cond6_iff L k).mp h) (by first | (unfold valid big at *; omega) | (unfold big at *; omega) | omega)
            have v0 : valid L (2 * k.val) := by unfold valid big at *; omega
            have v1 : valid L (2 * k.val + 1) := by unfold valid big at *; omega
            have v2 : ¬ valid L (2 * k.val + 2) := by unfold valid big at *; omega
            have v3' : ¬ valid L (2 * k.val + 3) := by unfold valid big at *; omega
            have hm0 : 2 ≤ 2 * k.val ∧ valid L (2 * k.val - 2) := ⟨by omega, by unfold valid big at *; omega⟩
            have hm1 : 2 ≤ 2 * k.val + 1 ∧ valid L (2 * k.val + 1 - 2) := ⟨by omega, by unfold valid big at *; omega⟩
            ihave S8 := (Entails.of_eq (inSlotV_pos d L fx v0)) $$ S8
            icases S8 with ⟨%g4, %hin4, F8⟩
            ihave S9 := (Entails.of_eq (inSlotV_pos d L fx v1)) $$ S9
            icases S9 with ⟨%g5, %hin5, F9⟩
            ihave S10 := (Entails.of_eq (outSlotV_pos d L fx hm0)) $$ S10
            icases S10 with ⟨%g6, F10, R6⟩
            ihave S11 := (Entails.of_eq (outSlotV_pos d L fx hm1)) $$ S11
            icases S11 with ⟨%g7, F11, R7⟩
            ihave HX := (Entails.of_eq (xSet_out (xP d L fx) k.val hk)) $$ HX
            icases HX with ⟨-, -, HX⟩
            ihave HOut := (Entails.of_eq (oSet_out (oMix d L fx k.val) k.val hk)) $$ HOut
            icases HOut with ⟨Y0, Y1, HOut⟩
            ihave Y0 := (Entails.of_eq ((oMix_ge d L fx (t := k.val) (n := 2 * k.val) (by omega)).trans (oP_pos (F := F) d L v0))) $$ Y0
            icases Y0 with ⟨%f0, Y0⟩
            ihave Y0 := (Entails.of_eq (out_congr d L (off_5 L k v0).symm (out_inb L _) (k12_off5_inb L k k12_h2) f0)) $$ Y0
            ihave Y1 := (Entails.of_eq ((oMix_ge d L fx (t := k.val) (n := 2 * k.val + 1) (by omega)).trans (oP_pos (F := F) d L v1))) $$ Y1
            icases Y1 with ⟨%f1, Y1⟩
            ihave Y1 := (Entails.of_eq (out_congr d L (off_10 L k v1).symm (out_inb L _) (k12_off10_inb L k k12_h5) f1)) $$ Y1
            sl_exec
            sl_for (laneV0 d L g4) $$ [F8_dst R6]
            case region =>
              intro (j : Fin k12_t2_loop.trips) _
              unfold laneV0
              iintro ⟨HA, %g, HB, %hl⟩
              sl_exec
              sl_step
              isplitl [HA]; · iexact HA
              iexists _; isplitl [HB]; · iexact HB
              ipureintro; exact lanes_step d L a4 a6 g4 g j _ _ hl
            · unfold laneV0
              isplitl [F8_dst]; · iexact F8_dst
              iexists _; isplitl [R6]; · iexact R6
              ipureintro; exact lanes_zero d L a4 a6 g4 _
            iintro %_ HI
            unfold laneV0
            icases HI with ⟨H4, %g6', H6, %hl6⟩
            have hl6 : Lanes d L a4 a6 g4 g6' 200 := Eq.mp (congrArg (Lanes d L a4 a6 g4 g6') trips2) hl6
            sl_exec
            sl_for (laneV1 d L g5) $$ [F9_dst R7]
            case region =>
              intro (j : Fin k12_t3_loop.trips) _
              unfold laneV1
              iintro ⟨HA, %g, HB, %hl⟩
              sl_exec
              sl_step
              isplitl [HA]; · iexact HA
              iexists _; isplitl [HB]; · iexact HB
              ipureintro; exact lanes_step' d L a5 a7 g5 g j _ _ hl
            · unfold laneV1
              isplitl [F9_dst]; · iexact F9_dst
              iexists _; isplitl [R7]; · iexact R7
              ipureintro; exact lanes_zero d L a5 a7 g5 _
            iintro %_ HI
            unfold laneV1
            icases HI with ⟨H5, %g7', H7, %hl7⟩
            have hl7 : Lanes d L a5 a7 g5 g7' 200 := Eq.mp (congrArg (Lanes d L a5 a7 g5 g7') trips3) hl7
            sl_exec
            sl_step
            isplitr; · iexact Hmw
            isplitl [HO]
            · iexists _; isplitr
              rotate_left
              · iexact HO
              ipureintro; intro p hp
              rcases Finset.mem_insert.mp hp with rfl | hp
              · exact .inr rfl
              rcases Finset.mem_insert.mp hp with rfl | hp
              · exact .inr rfl
              rcases Finset.mem_insert.mp hp with rfl | hp
              · exact .inr rfl
              rcases Finset.mem_insert.mp hp with rfl | hp
              · exact .inr rfl
              exact hW' p hp
            isplitl [HX F8_src F9_src]
            · iapply (Entails.of_eq (xSet_in (xP d L fx) k.val hk).symm)
              isplitl [F8_src]; · iapply (Entails.of_eq (xP_pos d L fx v0).symm); iexact F8_src
              isplitl [F9_src]; · iapply (Entails.of_eq (xP_pos d L fx v1).symm); iexact F9_src
              iexact HX
            isplitl [HOut F10_dst F11_dst]
            · iapply (Entails.of_eq (oSet_in (oMix d L fx (k.val + 1)) k.val hk (by omega)).symm)
              isplitl [F10_dst]; · iapply (Entails.of_eq ((oMix_lt d L fx (t := k.val + 1) (n := 2 * k.val - 2) (by omega)).trans (oQ_pos d L fx hm0.2)).symm); iexact F10_dst
              isplitl [F11_dst]
              · iapply (Entails.of_eq ((oMix_lt d L fx (t := k.val + 1) (n := 2 * k.val - 1) (by omega)).trans (oQ_pos d L fx (n := 2 * k.val - 1) (by have := hm1.2; rwa [show 2 * k.val + 1 - 2 = 2 * k.val - 1 by omega] at this))).symm)
                iapply (Entails.of_eq (congrArg (oqPiece d L fx) (show 2 * k.val + 1 - 2 = 2 * k.val - 1 by omega))); iexact F11_dst
              iapply (Entails.of_eq (oMix_core d L fx k.val)); iexact HOut
            isplitl [H4 F8]
            · iapply (Entails.of_eq (congrArg (inSlotV d L fx a4 cc12_scratch4.sem) (show 2 * k.val + 2 = 2 * (k.val + 1) by ring)))
              iapply (Entails.of_eq (inSlotV_neg d L fx v2).symm)
              isplitl [H4]; · iexists _; iexact H4
              iexact F8
            isplitl [F10 H6]
            · iapply (Entails.of_eq (congrArg (outSlotV d L fx a6 cc12_scratch6.sem) (show 2 * k.val + 2 = 2 * (k.val + 1) by ring)))
              iapply (fl_outV d L fx (off_5 L k v0) (k12_off5_inb L k k12_h2) v0 a4 a6 cc12_scratch6.sem f0 g4 g6' hl6 hin4); iexists _
              isplitr
              rotate_left
              · isplitl [F10]; · iexact F10
                iexact H6
              ipureintro; intro y; rfl
            isplitl [H5 F9]
            · iapply (Entails.of_eq (congrArg (inSlotV d L fx a5 cc12_scratch5.sem) (show 2 * k.val + 3 = 2 * (k.val + 1) + 1 by ring)))
              iapply (Entails.of_eq (inSlotV_neg d L fx v3').symm)
              isplitl [H5]; · iexists _; iexact H5
              iexact F9
            · iapply (Entails.of_eq (congrArg (outSlotV d L fx a7 cc12_scratch7.sem) (show 2 * k.val + 1 + 2 = 2 * (k.val + 1) + 1 by ring)))
              iapply (fl_outV d L fx (off_10 L k v1) (k12_off10_inb L k k12_h5) v1 a5 a7 cc12_scratch7.sem f1 g5 g7' hl7 hin5); iexists _
              isplitr
              rotate_left
              · isplitl [F11]; · iexact F11
                iexact H7
              ipureintro; intro y; rfl
          · -- the last trip of a tile with fifteen pieces: the second slot only drains
            have k12_h1 : k12_cond1 k = 1#1 := (cond1_iff k).mpr (by omega)
            have k12_h2 : k12_cond2 L k = 1#1 := cond2_iff L k
            have k12_h3 : ¬ k12_cond3 L k = 1#1 := fun h => absurd ((cond3_iff L k).mp h) (by omega)
            have k12_h4 : k12_cond4 k = 1#1 := (cond4_iff k).mpr (by omega)
            have k12_h5 : ¬ k12_cond5 L k = 1#1 := fun h => absurd ((cond5_iff L k).mp h) (by first | (unfold valid big at *; omega) | (unfold big at *; omega) | omega)
            have k12_h6 : ¬ k12_cond6 L k = 1#1 := fun h => absurd ((cond6_iff L k).mp h) (by first | (unfold valid big at *; omega) | (unfold big at *; omega) | omega)
            have v0 : valid L (2 * k.val) := by unfold valid big at *; omega
            have v1 : ¬ valid L (2 * k.val + 1) := by unfold valid big at *; omega
            have v2 : ¬ valid L (2 * k.val + 2) := by unfold valid big at *; omega
            have v3' : ¬ valid L (2 * k.val + 3) := by unfold valid big at *; omega
            have hm0 : 2 ≤ 2 * k.val ∧ valid L (2 * k.val - 2) := ⟨by omega, by unfold valid big at *; omega⟩
            have hm1 : 2 ≤ 2 * k.val + 1 ∧ valid L (2 * k.val + 1 - 2) := ⟨by omega, by unfold valid big at *; omega⟩
            ihave S8 := (Entails.of_eq (inSlotV_pos d L fx v0)) $$ S8
            icases S8 with ⟨%g4, %hin4, F8⟩
            ihave S9 := (Entails.of_eq (inSlotV_neg d L fx v1)) $$ S9
            icases S9 with ⟨⟨%g5, H5⟩, F9⟩
            ihave S10 := (Entails.of_eq (outSlotV_pos d L fx hm0)) $$ S10
            icases S10 with ⟨%g6, F10, R6⟩
            ihave S11 := (Entails.of_eq (outSlotV_pos d L fx hm1)) $$ S11
            icases S11 with ⟨%g7, F11, R7⟩
            ihave HX := (Entails.of_eq (xSet_out (xP d L fx) k.val hk)) $$ HX
            icases HX with ⟨-, -, HX⟩
            ihave HOut := (Entails.of_eq (oSet_out (oMix d L fx k.val) k.val hk)) $$ HOut
            icases HOut with ⟨Y0, -, HOut⟩
            ihave Y0 := (Entails.of_eq ((oMix_ge d L fx (t := k.val) (n := 2 * k.val) (by omega)).trans (oP_pos (F := F) d L v0))) $$ Y0
            icases Y0 with ⟨%f0, Y0⟩
            ihave Y0 := (Entails.of_eq (out_congr d L (off_5 L k v0).symm (out_inb L _) (k12_off5_inb L k k12_h2) f0)) $$ Y0
            sl_exec
            sl_for (laneV0 d L g4) $$ [F8_dst R6]
            case region =>
              intro (j : Fin k12_t2_loop.trips) _
              unfold laneV0
              iintro ⟨HA, %g, HB, %hl⟩
              sl_exec
              sl_step
              isplitl [HA]; · iexact HA
              iexists _; isplitl [HB]; · iexact HB
              ipureintro; exact lanes_step d L a4 a6 g4 g j _ _ hl
            · unfold laneV0
              isplitl [F8_dst]; · iexact F8_dst
              iexists _; isplitl [R6]; · iexact R6
              ipureintro; exact lanes_zero d L a4 a6 g4 _
            iintro %_ HI
            unfold laneV0
            icases HI with ⟨H4, %g6', H6, %hl6⟩
            have hl6 : Lanes d L a4 a6 g4 g6' 200 := Eq.mp (congrArg (Lanes d L a4 a6 g4 g6') trips2) hl6
            sl_exec
            sl_step
            isplitr; · iexact Hmw
            isplitl [HO]
            · iexists _; isplitr
              rotate_left
              · iexact HO
              ipureintro; intro p hp
              rcases Finset.mem_insert.mp hp with rfl | hp
              · exact .inr rfl
              rcases Finset.mem_insert.mp hp with rfl | hp
              · exact .inr rfl
              rcases Finset.mem_insert.mp hp with rfl | hp
              · exact .inr rfl
              exact hW' p hp
            isplitl [HX F8_src]
            · iapply (Entails.of_eq (xSet_in (xP d L fx) k.val hk).symm)
              isplitl [F8_src]; · iapply (Entails.of_eq (xP_pos d L fx v0).symm); iexact F8_src
              isplitr; · iapply (Entails.of_eq (xP_neg d L fx v1).symm); iempintro
              iexact HX
            isplitl [HOut F10_dst F11_dst]
            · iapply (Entails.of_eq (oSet_in (oMix d L fx (k.val + 1)) k.val hk (by omega)).symm)
              isplitl [F10_dst]; · iapply (Entails.of_eq ((oMix_lt d L fx (t := k.val + 1) (n := 2 * k.val - 2) (by omega)).trans (oQ_pos d L fx hm0.2)).symm); iexact F10_dst
              isplitl [F11_dst]
              · iapply (Entails.of_eq ((oMix_lt d L fx (t := k.val + 1) (n := 2 * k.val - 1) (by omega)).trans (oQ_pos d L fx (n := 2 * k.val - 1) (by have := hm1.2; rwa [show 2 * k.val + 1 - 2 = 2 * k.val - 1 by omega] at this))).symm)
                iapply (Entails.of_eq (congrArg (oqPiece d L fx) (show 2 * k.val + 1 - 2 = 2 * k.val - 1 by omega))); iexact F11_dst
              iapply (Entails.of_eq (oMix_core d L fx k.val)); iexact HOut
            isplitl [H4 F8]
            · iapply (Entails.of_eq (congrArg (inSlotV d L fx a4 cc12_scratch4.sem) (show 2 * k.val + 2 = 2 * (k.val + 1) by ring)))
              iapply (Entails.of_eq (inSlotV_neg d L fx v2).symm)
              isplitl [H4]; · iexists _; iexact H4
              iexact F8
            isplitl [F10 H6]
            · iapply (Entails.of_eq (congrArg (outSlotV d L fx a6 cc12_scratch6.sem) (show 2 * k.val + 2 = 2 * (k.val + 1) by ring)))
              iapply (fl_outV d L fx (off_5 L k v0) (k12_off5_inb L k k12_h2) v0 a4 a6 cc12_scratch6.sem f0 g4 g6' hl6 hin4); iexists _
              isplitr
              rotate_left
              · isplitl [F10]; · iexact F10
                iexact H6
              ipureintro; intro y; rfl
            isplitl [H5 F9]
            · iapply (Entails.of_eq (congrArg (inSlotV d L fx a5 cc12_scratch5.sem) (show 2 * k.val + 3 = 2 * (k.val + 1) + 1 by ring)))
              iapply (Entails.of_eq (inSlotV_neg d L fx v3').symm)
              isplitl [H5]; · iexists _; iexact H5
              iexact F9
            · iapply (Entails.of_eq (outSlotV_neg d L fx (m := 2 * (k.val + 1) + 1) (by intro h; apply v1; have := h.2; rwa [show 2 * (k.val + 1) + 1 - 2 = 2 * k.val + 1 by omega] at this)).symm)
              isplitl [R7]; · iexists _; iexact R7
              iexact F11
    · have hk0 : k.val = 0 := by omega
      -- the first trip: nothing to drain
      have k12_h1 : ¬ k12_cond1 k = 1#1 := fun h => absurd ((cond1_iff k).mp h) (by omega)
      have k12_h2 : k12_cond2 L k = 1#1 := cond2_iff L k
      have k12_h3 : k12_cond3 L k = 1#1 := (cond3_iff L k).mpr (by omega)
      have k12_h4 : ¬ k12_cond4 k = 1#1 := fun h => absurd ((cond4_iff k).mp h) (by omega)
      have k12_h5 : k12_cond5 L k = 1#1 := (cond5_iff L k).mpr (by first | (unfold valid big at *; omega) | (unfold big at *; omega) | omega)
      have k12_h6 : k12_cond6 L k = 1#1 := (cond6_iff L k).mpr (by first | (unfold valid big at *; omega) | (unfold big at *; omega) | omega)
      have v0 : valid L (2 * k.val) := by unfold valid big at *; omega
      have v1 : valid L (2 * k.val + 1) := by unfold valid big at *; omega
      have v2 : valid L (2 * k.val + 2) := by unfold valid big at *; omega
      have v3' : valid L (2 * k.val + 3) := by unfold valid big at *; omega
      have hm0 : ¬ (2 ≤ 2 * k.val ∧ valid L (2 * k.val - 2)) := by omega
      have hm1 : ¬ (2 ≤ 2 * k.val + 1 ∧ valid L (2 * k.val + 1 - 2)) := by omega
      ihave S8 := (Entails.of_eq (inSlotV_pos d L fx v0)) $$ S8
      icases S8 with ⟨%g4, %hin4, F8⟩
      ihave S9 := (Entails.of_eq (inSlotV_pos d L fx v1)) $$ S9
      icases S9 with ⟨%g5, %hin5, F9⟩
      ihave S10 := (Entails.of_eq (outSlotV_neg d L fx hm0)) $$ S10
      icases S10 with ⟨⟨%g6, R6⟩, F10⟩
      ihave S11 := (Entails.of_eq (outSlotV_neg d L fx hm1)) $$ S11
      icases S11 with ⟨⟨%g7, R7⟩, F11⟩
      ihave HX := (Entails.of_eq (xSet_out (xP d L fx) k.val hk)) $$ HX
      icases HX with ⟨X2, X3, HX⟩
      ihave X2 := (Entails.of_eq (xP_pos d L fx v2)) $$ X2
      ihave X2 := (Entails.of_eq (in_congr d L (off_6 L k v2).symm (in_inb L _) (k12_off6_inb L k k12_h3) fx)) $$ X2
      ihave X3 := (Entails.of_eq (xP_pos d L fx v3')) $$ X3
      ihave X3 := (Entails.of_eq (in_congr d L (off_11 L k v3').symm (in_inb L _) (k12_off11_inb L k k12_h6) fx)) $$ X3
      ihave HOut := (Entails.of_eq (oSet_out (oMix d L fx k.val) k.val hk)) $$ HOut
      icases HOut with ⟨Y0, Y1, HOut⟩
      ihave Y0 := (Entails.of_eq ((oMix_ge d L fx (t := k.val) (n := 2 * k.val) (by omega)).trans (oP_pos (F := F) d L v0))) $$ Y0
      icases Y0 with ⟨%f0, Y0⟩
      ihave Y0 := (Entails.of_eq (out_congr d L (off_5 L k v0).symm (out_inb L _) (k12_off5_inb L k k12_h2) f0)) $$ Y0
      ihave Y1 := (Entails.of_eq ((oMix_ge d L fx (t := k.val) (n := 2 * k.val + 1) (by omega)).trans (oP_pos (F := F) d L v1))) $$ Y1
      icases Y1 with ⟨%f1, Y1⟩
      ihave Y1 := (Entails.of_eq (out_congr d L (off_10 L k v1).symm (out_inb L _) (k12_off10_inb L k k12_h5) f1)) $$ Y1
      sl_exec
      sl_for (laneV0 d L g4) $$ [F8_dst R6]
      case region =>
        intro (j : Fin k12_t2_loop.trips) _
        unfold laneV0
        iintro ⟨HA, %g, HB, %hl⟩
        sl_exec
        sl_step
        isplitl [HA]; · iexact HA
        iexists _; isplitl [HB]; · iexact HB
        ipureintro; exact lanes_step d L a4 a6 g4 g j _ _ hl
      · unfold laneV0
        isplitl [F8_dst]; · iexact F8_dst
        iexists _; isplitl [R6]; · iexact R6
        ipureintro; exact lanes_zero d L a4 a6 g4 _
      iintro %_ HI
      unfold laneV0
      icases HI with ⟨H4, %g6', H6, %hl6⟩
      have hl6 : Lanes d L a4 a6 g4 g6' 200 := Eq.mp (congrArg (Lanes d L a4 a6 g4 g6') trips2) hl6
      sl_exec
      sl_for (laneV1 d L g5) $$ [F9_dst R7]
      case region =>
        intro (j : Fin k12_t3_loop.trips) _
        unfold laneV1
        iintro ⟨HA, %g, HB, %hl⟩
        sl_exec
        sl_step
        isplitl [HA]; · iexact HA
        iexists _; isplitl [HB]; · iexact HB
        ipureintro; exact lanes_step' d L a5 a7 g5 g j _ _ hl
      · unfold laneV1
        isplitl [F9_dst]; · iexact F9_dst
        iexists _; isplitl [R7]; · iexact R7
        ipureintro; exact lanes_zero d L a5 a7 g5 _
      iintro %_ HI
      unfold laneV1
      icases HI with ⟨H5, %g7', H7, %hl7⟩
      have hl7 : Lanes d L a5 a7 g5 g7' 200 := Eq.mp (congrArg (Lanes d L a5 a7 g5 g7') trips3) hl7
      sl_exec
      sl_step
      isplitr; · iexact Hmw
      isplitl [HO]
      · iexists _; isplitr
        rotate_left
        · iexact HO
        ipureintro; intro p hp
        rcases Finset.mem_insert.mp hp with rfl | hp
        · exact .inr rfl
        rcases Finset.mem_insert.mp hp with rfl | hp
        · exact .inr rfl
        exact hW' p hp
      isplitl [HX F8_src F9_src]
      · iapply (Entails.of_eq (xSet_in (xP d L fx) k.val hk).symm)
        isplitl [F8_src]; · iapply (Entails.of_eq (xP_pos d L fx v0).symm); iexact F8_src
        isplitl [F9_src]; · iapply (Entails.of_eq (xP_pos d L fx v1).symm); iexact F9_src
        iexact HX
      isplitl [HOut]
      · iapply (Entails.of_eq (congrArg (fun s => bigSep s (oMix d L fx (k.val + 1))) (show oCore k.val = oSet (k.val + 1) by rw [hk0]; decide)))
        iapply (Entails.of_eq (oMix_core d L fx k.val)); iexact HOut
      isplitl [F8]
      · iapply (Entails.of_eq (congrArg (inSlotV d L fx a4 cc12_scratch4.sem) (show 2 * k.val + 2 = 2 * (k.val + 1) by ring)))
        iapply (fl_inV d L fx (off_6 L k v2) (k12_off6_inb L k k12_h3) v2 a4 cc12_scratch4.sem); iexists _, _
        isplitr
        rotate_left
        · iexact F8
        ipureintro; intro y; rfl
      isplitl [F10 H6]
      · iapply (Entails.of_eq (congrArg (outSlotV d L fx a6 cc12_scratch6.sem) (show 2 * k.val + 2 = 2 * (k.val + 1) by ring)))
        iapply (fl_outV d L fx (off_5 L k v0) (k12_off5_inb L k k12_h2) v0 a4 a6 cc12_scratch6.sem f0 g4 g6' hl6 hin4); iexists _
        isplitr
        rotate_left
        · isplitl [F10]; · iexact F10
          iexact H6
        ipureintro; intro y; rfl
      isplitl [F9]
      · iapply (Entails.of_eq (congrArg (inSlotV d L fx a5 cc12_scratch5.sem) (show 2 * k.val + 3 = 2 * (k.val + 1) + 1 by ring)))
        iapply (fl_inV d L fx (off_11 L k v3') (k12_off11_inb L k k12_h6) v3' a5 cc12_scratch5.sem); iexists _, _
        isplitr
        rotate_left
        · iexact F9
        ipureintro; intro y; rfl
      · iapply (Entails.of_eq (congrArg (outSlotV d L fx a7 cc12_scratch7.sem) (show 2 * k.val + 1 + 2 = 2 * (k.val + 1) + 1 by ring)))
        iapply (fl_outV d L fx (off_10 L k v1) (k12_off10_inb L k k12_h5) v1 a5 a7 cc12_scratch7.sem f1 g5 g7' hl7 hin5); iexists _
        isplitr
        rotate_left
        · isplitl [F11]; · iexact F11
          iexact H7
        ipureintro; intro y; rfl
  · unfold invV
    isplitr; · iexact Hmw
    isplitl [HO]
    · iexists W; isplitr
      · ipureintro; exact fun p hp => .inl hp
      · iexact HO
    isplitl [HX]; · iexact HX
    isplitl [HOut]; · iapply (Entails.of_eq (oMix_zero d L fx).symm); iexact HOut
    isplitl [S8]; · iexact S8
    isplitl [H6 Hs10]
    · rw [outSlotV_neg d L fx (by omega)]; isplitl [H6]; · iexists _; iexact H6
      iexact Hs10
    isplitl [S9]; · iexact S9
    rw [outSlotV_neg d L fx (by omega)]; isplitl [H7]; · iexists _; iexact H7
    iexact Hs11
  iintro %acc' HI
  ihave HI := (Entails.of_eq (congrArg (fun t => invV d L O W fx t acc') trips1)) $$ HI
  unfold invV
  icases HI with ⟨-, ⟨%W', %hW', HO⟩, HX, HOut, S8, S10, S9, S11⟩
  have nv16 : ¬ valid L (2 * 8) := by unfold valid; omega
  have nv17 : ¬ valid L (2 * 8 + 1) := by unfold valid; omega
  have hm14 : 2 ≤ 2 * 8 ∧ valid L (2 * 8 - 2) := ⟨by omega, Or.inl (by omega)⟩
  ihave S8 := (Entails.of_eq (inSlotV_neg d L fx nv16)) $$ S8
  icases S8 with ⟨⟨%g4', H4⟩, Hs8⟩
  ihave S9 := (Entails.of_eq (inSlotV_neg d L fx nv17)) $$ S9
  icases S9 with ⟨⟨%g5', H5⟩, Hs9⟩
  ihave S10 := (Entails.of_eq (outSlotV_pos d L fx hm14)) $$ S10
  icases S10 with ⟨%g6', F10, R6⟩
  by_cases hb : big L
  · have k12_h8 : k12_cond8 L = 1#1 := (cond8_iff L).mpr hb
    have hm15 : 2 ≤ 2 * 8 + 1 ∧ valid L (2 * 8 + 1 - 2) := ⟨by omega, Or.inr ⟨by omega, hb⟩⟩
    ihave S11 := (Entails.of_eq (outSlotV_pos d L fx hm15)) $$ S11
    icases S11 with ⟨%g7', F11, R7⟩
    sl_exec
    sl_step
    isplitl [HX]; · iapply (xRange_end d L fx); iexact HX
    isplitl [HOut F10_dst F11_dst]
    · iapply (Entails.of_eq (oRange_end (oQ d L fx)).symm)
      isplitl [F10_dst]; · iapply (Entails.of_eq (oQ_pos d L fx hm14.2).symm); iexact F10_dst
      isplitl [F11_dst]; · iapply (Entails.of_eq (oQ_pos d L fx hm15.2).symm); iexact F11_dst
      iapply (Entails.of_eq (oMix_end d L fx)); iexact HOut
    isplitl [H4]; · iexists _; iexact H4
    isplitl [H5]; · iexists _; iexact H5
    isplitl [R6]; · iexists _; iexact R6
    isplitl [R7]; · iexists _; iexact R7
    isplitl [Hs8]; · iexact Hs8
    isplitl [Hs9]; · iexact Hs9
    isplitl [F10]; · iexact F10
    isplitl [F11]; · iexact F11
    isplitl [HO]
    · iexists _; isplitr
      rotate_left
      · iexact HO
      ipureintro; intro p hp
      rcases Finset.mem_insert.mp hp with rfl | hp
      · exact .inr rfl
      rcases Finset.mem_insert.mp hp with rfl | hp
      · exact .inr rfl
      exact hW' p hp
    iexact HR
  · have k12_h8 : ¬ k12_cond8 L = 1#1 := fun h => hb ((cond8_iff L).mp h)
    have hm15 : ¬ (2 ≤ 2 * 8 + 1 ∧ valid L (2 * 8 + 1 - 2)) := by intro h; have := h.2; unfold valid at this; omega
    ihave S11 := (Entails.of_eq (outSlotV_neg d L fx hm15)) $$ S11
    icases S11 with ⟨⟨%g7', R7⟩, F11⟩
    sl_exec
    sl_step
    isplitl [HX]; · iapply (xRange_end d L fx); iexact HX
    isplitl [HOut F10_dst]
    · iapply (Entails.of_eq (oRange_end (oQ d L fx)).symm)
      isplitl [F10_dst]; · iapply (Entails.of_eq (oQ_pos d L fx hm14.2).symm); iexact F10_dst
      isplitr; · iapply (Entails.of_eq (oQ_neg d L fx (n := 15) (by unfold valid; omega)).symm); iempintro
      iapply (Entails.of_eq (oMix_end d L fx)); iexact HOut
    isplitl [H4]; · iexists _; iexact H4
    isplitl [H5]; · iexists _; iexact H5
    isplitl [R6]; · iexists _; iexact R6
    isplitl [R7]; · iexists _; iexact R7
    isplitl [Hs8]; · iexact Hs8
    isplitl [Hs9]; · iexact Hs9
    isplitl [F10]; · iexact F10
    isplitl [F11]; · iexact F11
    isplitl [HO]
    · iexists _; isplitr
      rotate_left
      · iexact HO
      ipureintro; intro p hp
      rcases Finset.mem_insert.mp hp with rfl | hp
      · exact .inr rfl
      exact hW' p hp
    iexact HR

/-! The subcore's scoped storage: the four staging buffers and the four semaphores of this call, and the rest. -/

abbrev c8 : GSem nD τ sig := (thr d L, SemLoc.dma cc12_scratch4.sem)
abbrev c9 : GSem nD τ sig := (thr d L, SemLoc.dma cc12_scratch5.sem)
abbrev c10 : GSem nD τ sig := (thr d L, SemLoc.dma cc12_scratch6.sem)
abbrev c11 : GSem nD τ sig := (thr d L, SemLoc.dma cc12_scratch7.sem)

omit [FloatOps F] in
theorem ownSems0_V :
    (ownSems0 (thr d L) : sProp 𝕄)
      = iprop(semVal (c8 d L) 0 ∗ semVal (c9 d L) 0 ∗ semVal (c10 d L) 0 ∗ semVal (c11 d L) 0
          ∗ bigSep (((((ownCells (thr d L)).erase (c8 d L)).erase (c9 d L)).erase (c10 d L)).erase (c11 d L)) fun g => semVal g 0) := by
  unfold SparseCore.Cfg.ownSems0
  rw [SparseCore.bigSep_erase' ((mem_ownCells (g := c8 d L)).mpr ⟨rfl, by
      show (SemLoc.dma cc12_scratch4.sem : SemLoc sig).isScoped .scVector = true; decide⟩),
    SparseCore.bigSep_erase' (Finset.mem_erase.mpr ⟨fun e => absurd (Prod.mk.inj e).2 (by decide), (mem_ownCells (g := c9 d L)).mpr ⟨rfl, by
      show (SemLoc.dma cc12_scratch5.sem : SemLoc sig).isScoped .scVector = true; decide⟩⟩),
    SparseCore.bigSep_erase' (Finset.mem_erase.mpr ⟨fun e => absurd (Prod.mk.inj e).2 (by decide), Finset.mem_erase.mpr ⟨fun e => absurd (Prod.mk.inj e).2 (by decide),
      (mem_ownCells (g := c10 d L)).mpr ⟨rfl, by show (SemLoc.dma cc12_scratch6.sem : SemLoc sig).isScoped .scVector = true; decide⟩⟩⟩),
    SparseCore.bigSep_erase' (Finset.mem_erase.mpr ⟨fun e => absurd (Prod.mk.inj e).2 (by decide), Finset.mem_erase.mpr ⟨fun e => absurd (Prod.mk.inj e).2 (by decide),
      Finset.mem_erase.mpr ⟨fun e => absurd (Prod.mk.inj e).2 (by decide),
      (mem_ownCells (g := c11 d L)).mpr ⟨rfl, by show (SemLoc.dma cc12_scratch7.sem : SemLoc sig).isScoped .scVector = true; decide⟩⟩⟩⟩)]

abbrev pV (L : grid12.Coords) : Proc τ := Proc.scVector (cV L) (jV L)

omit [FloatOps F] in
theorem ownBufs_V :
    (ownBufs (thr d L) : sProp 𝕄)
      = iprop((∃ f, (thr d L).loc cc12_scratch0 ↦{fullShare} f) ∗ (∃ f, (thr d L).loc cc12_scratch1 ↦{fullShare} f)
          ∗ (∃ f, (thr d L).loc cc12_scratch2 ↦{fullShare} f) ∗ (∃ f, (thr d L).loc cc12_scratch3 ↦{fullShare} f)
          ∗ bigSep (((((ownRefs (τ := τ) (pV L)).erase ((pV L).devRef cc12_scratch0)).erase ((pV L).devRef cc12_scratch1)).erase
              ((pV L).devRef cc12_scratch2)).erase ((pV L).devRef cc12_scratch3))
              fun b => iprop(∃ f, ((d, b) : Loc nD τ sig) ↦{fullShare} f)) := by
  unfold SparseCore.Cfg.ownBufs
  refine (SparseCore.bigSep_erase' (SparseCore.Cfg.mem_ownRefs_of_owner (p := pV L) (b := (pV L).devRef cc12_scratch0) rfl)).trans ?_
  rw [SparseCore.bigSep_erase' (Finset.mem_erase.mpr ⟨fun e => absurd (Proc.devRef_injective _ e) (show (cc12_scratch1 : Ref sig .scVector) ≠ cc12_scratch0 by decide),
      SparseCore.Cfg.mem_ownRefs_of_owner (p := pV L) (b := (pV L).devRef cc12_scratch1) rfl⟩),
    SparseCore.bigSep_erase' (Finset.mem_erase.mpr ⟨fun e => absurd (Proc.devRef_injective _ e) (show (cc12_scratch2 : Ref sig .scVector) ≠ cc12_scratch1 by decide),
      Finset.mem_erase.mpr ⟨fun e => absurd (Proc.devRef_injective _ e) (show (cc12_scratch2 : Ref sig .scVector) ≠ cc12_scratch0 by decide),
      SparseCore.Cfg.mem_ownRefs_of_owner (p := pV L) (b := (pV L).devRef cc12_scratch2) rfl⟩⟩),
    SparseCore.bigSep_erase' (Finset.mem_erase.mpr ⟨fun e => absurd (Proc.devRef_injective _ e) (show (cc12_scratch3 : Ref sig .scVector) ≠ cc12_scratch2 by decide),
      Finset.mem_erase.mpr ⟨fun e => absurd (Proc.devRef_injective _ e) (show (cc12_scratch3 : Ref sig .scVector) ≠ cc12_scratch1 by decide),
      Finset.mem_erase.mpr ⟨fun e => absurd (Proc.devRef_injective _ e) (show (cc12_scratch3 : Ref sig .scVector) ≠ cc12_scratch0 by decide),
      SparseCore.Cfg.mem_ownRefs_of_owner (p := pV L) (b := (pV L).devRef cc12_scratch3) rfl⟩⟩⟩)]

/-- The rest of the subcore's scoped storage, which the task does not touch. -/
def restR : sProp 𝕄 :=
  iprop((bigSep (((((ownRefs (τ := τ) (pV L)).erase ((pV L).devRef cc12_scratch0)).erase ((pV L).devRef cc12_scratch1)).erase
              ((pV L).devRef cc12_scratch2)).erase ((pV L).devRef cc12_scratch3))
              fun b => iprop(∃ f, ((d, b) : Loc nD τ sig) ↦{fullShare} f))
      ∗ bigSep (((((ownCells (thr d L)).erase (c8 d L)).erase (c9 d L)).erase (c10 d L)).erase (c11 d L)) fun g => semVal g 0)

theorem body_pre (hO : ∀ g, O g none = 0) :
    iprop(levAts (K (F := F)).L (K (F := F)).lev ∗ emp ∗ goRes d L fx ∗ ownBufs (thr d L) ∗ ownSems0 (thr d L) ∗ owes (thr d L) O W)
      ⊢ runPre d L O W fx (restR (F := F) d L) := by
  rw [ownSems0_V, ownBufs_V]
  unfold goRes runPre restR
  iintro ⟨#Hlv, -, ⟨HX, HOut⟩, ⟨H4, H5, H6, H7, Hbufs⟩, ⟨Hs8, Hs9, Hs10, Hs11, Hsems⟩, HO⟩
  ihave Hmw := ((K (F := F)).mayWaits_none (thr := thr d L) hO) $$ Hlv
  isplitr; · iexact Hmw
  isplitl [HO]; · iexact HO
  isplitl [HX]; · iexact HX
  isplitl [HOut]; · iexact HOut
  isplitl [H4]; · iexact H4
  isplitl [H5]; · iexact H5
  isplitl [H6]; · iexact H6
  isplitl [H7]; · iexact H7
  isplitl [Hs8]; · iexact Hs8
  isplitl [Hs9]; · iexact Hs9
  isplitl [Hs10]; · iexact Hs10
  isplitl [Hs11]; · iexact Hs11
  isplitl [Hbufs]; · iexact Hbufs
  iexact Hsems

theorem body_post :
    runPost d L O W fx (restR (F := F) d L)
      ⊢ iprop(tdRes d L fx ∗ ownBufs (thr d L) ∗ ownSems0 (thr d L) ∗ ∃ W', ⌜∀ p ∈ W', p ∈ W ∨ p.2 = none⌝ ∗ owes (thr d L) O W') := by
  rw [ownSems0_V, ownBufs_V]
  unfold tdRes runPost restR
  iintro ⟨HX, HOut, H4, H5, H6, H7, Hs8, Hs9, Hs10, Hs11, HW, Hbufs, Hsems⟩
  isplitl [HX HOut]
  · isplitl [HX]; · iexact HX
    iexact HOut
  isplitl [H4 H5 H6 H7 Hbufs]
  · isplitl [H4]; · iexact H4
    isplitl [H5]; · iexact H5
    isplitl [H6]; · iexact H6
    isplitl [H7]; · iexact H7
    iexact Hbufs
  isplitl [Hs8 Hs9 Hs10 Hs11 Hsems]
  · isplitl [Hs8]; · iexact Hs8
    isplitl [Hs9]; · iexact Hs9
    isplitl [Hs10]; · iexact Hs10
    isplitl [Hs11]; · iexact Hs11
    iexact Hsems
  iexact HW

/-- The task in the launch theorem's shape: from what the call hands the tile and the subcore's scoped storage to
    what the tile hands back and the storage again. -/
theorem tile_body (hF : (K (F := F)).Facts) (hO : ∀ g, O g none = 0) :
    iprop(levAts (K (F := F)).L (K (F := F)).lev ∗ emp ∗ goRes d L fx ∗ scopedBufs (thr d L) ∗ scopedSems0 (thr d L) ∗ owes (thr d L) O W)
      ⊢ wp frame (wpE (defs₀ (F := F)) 𝒱₀ (thr d L) none) Set.univ
          (cc12_sc_group L xtW (Memref.isWhole_whole _) oW (Memref.isWhole_whole _) a4 (Memref.isWhole_whole _) a5 (Memref.isWhole_whole _)
            a6 (Memref.isWhole_whole _) a7 (Memref.isWhole_whole _) cc12_scratch4 cc12_scratch5 cc12_scratch6 cc12_scratch7)
          fun _ => iprop(tdRes d L fx ∗ scopedBufs (thr d L) ∗ scopedSems0 (thr d L)
            ∗ ∃ W', ⌜∀ p ∈ W', p ∈ W ∨ p.2 = none⌝ ∗ owes (thr d L) O W') := by
  rw [(K (F := F)).scopedBufs_V hF d (cV L) (jV L), SparseCore.Cfg.scopedSems0_V (Val := Elt F) d (cV L) (jV L)]
  exact (body_pre d L O W fx hO).trans ((tile_run d L O W fx (restR (F := F) d L)).trans (wp_mono frame _ _ fun _ => body_post d L O W fx))

end Tile

end Cert.Proof.TileB12

end
-- ==== Proof.TileVal13.lean ====
/-
  What the staging buffers of one vector subcore hold while it copies a piece of 3200 consecutive elements of row 13 of
  the transposed argument into the flat result, read index by index. No program and no ownership here: only the contents.

  A transfer lands the piece in row 0 of an 8 × 3200 staging array (`InRow`: position (0, t) of that row holds element
  (0, pos + t) of the transposed argument, `pos` the piece's first column). A loop of 200 trips copies that row, 16 lanes
  per trip, into the first 3200 elements of a flat staging array of 25600: trip `j` reads the 1 × 16 window at columns
  [16 j, 16 j + 16) of row 0 and writes it, flattened, at elements [16 j, 16 j + 16). After `j` trips the first 16 j
  elements of the flat array are the first 16 j elements of the row (`Lanes`); a trip extends the prefix by 16
  (`lanes_step`: an element below 16 j is outside the window written and keeps its value, an element of the window reads
  the lane written there, which is the row's element at the same column). A second transfer writes the first 3200
  elements of the flat array to the piece of the result at the same `pos`; so every element of that piece of the result
  holds the element of row 13 of the transposed argument at its own position (`out_written`): the composite of the three
  index maps t ↦ (0, pos + t) ↦ (0, t) ↦ t ↦ pos + t is the identity on positions of the row.
-/
import proofs.«206869_g37898791420194_cont_8to1_b_558_20_alg».proof.Proof.TileK13Defs
import proofs.«206869_g37898791420194_cont_8to1_b_558_20_alg».proof.Proof.Spec
import Idealize.ShloMosaic.Lib.WritesUnit
import Idealize.ShloMosaic.Lib.ValueLayout

noncomputable section

namespace Cert.Proof.TileVal13

open Cert.Proof.TileK13 Cert.KernelIdeal Cert.KernelIdeal.Gen
open Idealize.ShloMosaic Idealize.ShloMosaic.ValueIdx

variable {F : FTy → Type} [FloatOps F]
variable (d : Dev nD) (L : grid13.Coords)
variable (fx : Buf (Elt F) ((Memref.whole main_v0_scv : Memref sig .scVector .hbm S22x1600000 .f32).view.loc (thr d L)))

abbrev rowRect : Rect S8x3200 := Rect.unit (s := S8x3200) ![0, 0] S1x3200.size inb_S8x3200_S1x3200_0_0

/-- row 0 of the staging array is piece n of the argument row -/
def InRow (a : Memref sig .scVector .vmem S8x3200 .f32) (ga : Buf (Elt F) (a.view.loc (thr d L))) (n : ℕ) : Prop :=
  ∀ y : S1x3200.Idx, a.view.read (Elt F) ga (rowRect.emb y) = (inM L n).view.read (Elt F) fx y

theorem inRow_fetch (a : Memref sig .scVector .vmem S8x3200 .f32) (gold : Buf (Elt F) (a.view.loc (thr d L)))
    (w : S1x3200.Idx → Elt F .f32) (n : ℕ) (hw : ∀ y, w y = (inM L n).view.read (Elt F) fx y) :
    InRow d L fx a (a.view.writes (Elt F) gold [⟨rowRect, w⟩]) n :=
  fun y => (View.read_writes_cons_emb a.view gold rowRect w [] y).trans (hw y)

def Lanes (a : Memref sig .scVector .vmem S8x3200 .f32) (b : Memref sig .scVector .vmem S25600 .f32)
    (ga : Buf (Elt F) (a.view.loc (thr d L))) (gb : Buf (Elt F) (b.view.loc (thr d L))) (j : ℕ) : Prop :=
  ∀ (r : ℕ) (hr : r < 3200), r < 16 * j →
    b.view.read (Elt F) gb (ix1 (⟨r, by omega⟩ : Fin 25600)) = a.view.read (Elt F) ga (ix2 (0 : Fin 8) (⟨r, hr⟩ : Fin 3200))

theorem lanes_zero (a : Memref sig .scVector .vmem S8x3200 .f32) (b : Memref sig .scVector .vmem S25600 .f32)
    (ga : Buf (Elt F) (a.view.loc (thr d L))) (gb : Buf (Elt F) (b.view.loc (thr d L))) : Lanes d L a b ga gb 0 := by
  intro r hr h; omega

/-- The 1 × 16 window at column `c` of the staging array, read at lane `t`, is element `(0, c + t)`. -/
theorem idx_window {off : Fin 2 → ℕ} {c : ℕ} (h : off = ![0, c]) (p : ∀ a', off a' + S1x16.size a' ≤ S8x3200.size a')
    (t : Fin 16) (hr : c + t.val < 3200) :
    (Rect.unit (s := S8x3200) off S1x16.size p).toLoadRect.idx (ix2 (0 : Fin 1) t) = ix2 (0 : Fin 8) (⟨c + t.val, hr⟩ : Fin 3200) := by
  subst h
  funext a'; apply Fin.ext
  rw [LoadRect.idx_apply]
  match a' with
  | ⟨0, _⟩ => show 0 + 1 * 0 = 0; omega
  | ⟨1, _⟩ => show c + 1 * t.val = c + t.val; omega

/-- One trip of a lane-copy loop, the offsets given by their closed forms. -/
theorem lanes_step_core (a : Memref sig .scVector .vmem S8x3200 .f32) (b : Memref sig .scVector .vmem S25600 .f32)
    (ga : Buf (Elt F) (a.view.loc (thr d L))) (gb : Buf (Elt F) (b.view.loc (thr d L)))
    (t : ℕ) {off3 : Fin 2 → ℕ} {off4 : Fin 1 → ℕ} (h3 : off3 = ![0, 16 * t]) (h4 : off4 = ![16 * t])
    (p3 : ∀ a', off3 a' + S1x16.size a' ≤ S8x3200.size a') (p4 : ∀ a', off4 a' + S16.size a' ≤ S25600.size a')
    (h : Lanes d L a b ga gb t) :
    Lanes d L a b ga (b.view.writes (Elt F) gb [⟨Rect.unit (s := S25600) off4 S16.size p4,
      shapeCast S16 (a.view.readAt (Elt F) (Rect.unit (s := S8x3200) off3 S1x16.size p3).toLoadRect ga) shapeCasts_S1x16_S16⟩]) (t + 1) := by
  intro r hr hlt
  by_cases hlo : r < 16 * t
  · refine (View.read_writes_cons_unit_of_not_mem b.view gb p4 _ [] _ h4 (0 : Fin 1) (Or.inl ?_)).trans (h r hr hlo)
    show r < 16 * t
    exact hlo
  · have hx : r - 16 * t < 16 := by omega
    refine (View.read_writes_cons_unit_of_mem b.view gb p4 _ [] _ (ix1 (⟨r - 16 * t, hx⟩ : Fin 16)) h4 ?_).trans ?_
    · intro a'
      match a' with
      | ⟨0, _⟩ => show r = 16 * t + (r - 16 * t); omega
    · rw [shapeCast_1a_a_apply, View.readAt_apply, idx_window h3 p3 ⟨r - 16 * t, hx⟩ (by show 16 * t + (r - 16 * t) < 3200; omega)]
      congr 2
      apply Fin.ext
      show 16 * t + (r - 16 * t) = r
      omega

theorem lanes_step (a : Memref sig .scVector .vmem S8x3200 .f32) (b : Memref sig .scVector .vmem S25600 .f32)
    (ga : Buf (Elt F) (a.view.loc (thr d L))) (gb : Buf (Elt F) (b.view.loc (thr d L)))
    (j : Fin k13_t2_loop.trips) (p3 : ∀ a', (k13_off3 j) a' + S1x16.size a' ≤ S8x3200.size a')
    (p4 : ∀ a', (k13_off4 j) a' + S16.size a' ≤ S25600.size a') (h : Lanes d L a b ga gb j.val) :
    Lanes d L a b ga (b.view.writes (Elt F) gb [⟨Rect.unit (s := S25600) (k13_off4 j) S16.size p4,
      k13_pay1 (a.view.readAt (Elt F) (Rect.unit (s := S8x3200) (k13_off3 j) S1x16.size p3).toLoadRect ga)⟩]) (j.val + 1) :=
  lanes_step_core d L a b ga gb j.val (k13_off3_eq j) (k13_off4_eq j) p3 p4 h

theorem lanes_step' (a : Memref sig .scVector .vmem S8x3200 .f32) (b : Memref sig .scVector .vmem S25600 .f32)
    (ga : Buf (Elt F) (a.view.loc (thr d L))) (gb : Buf (Elt F) (b.view.loc (thr d L)))
    (j : Fin k13_t3_loop.trips) (p3 : ∀ a', (k13_off8 j) a' + S1x16.size a' ≤ S8x3200.size a')
    (p4 : ∀ a', (k13_off9 j) a' + S16.size a' ≤ S25600.size a') (h : Lanes d L a b ga gb j.val) :
    Lanes d L a b ga (b.view.writes (Elt F) gb [⟨Rect.unit (s := S25600) (k13_off9 j) S16.size p4,
      k13_pay2 (a.view.readAt (Elt F) (Rect.unit (s := S8x3200) (k13_off8 j) S1x16.size p3).toLoadRect ga)⟩]) (j.val + 1) :=
  lanes_step_core d L a b ga gb j.val (k13_off8_eq j) (k13_off9_eq j) p3 p4 h

/-- Position `y` of the write-out window of the flat staging array is its element `y 0`. -/
theorem stg_emb (y : S3200.Idx) (hy : (y 0).val < 25600) :
    (Rect.unit (s := S25600) ![0] S3200.size inb_S25600_S3200_0).emb y = ix1 (⟨(y 0).val, hy⟩ : Fin 25600) := by
  funext a'; apply Fin.ext
  match a' with
  | ⟨0, _⟩ => show 0 + 1 * (y 0).val = (y 0).val; omega

/-- Position `(0, t)` of row 0 of the staging array is its element `(0, t)`. -/
theorem row_emb (t : Fin 3200) : rowRect.emb (ix2 (0 : Fin 1) t) = ix2 (0 : Fin 8) t := by
  funext a'; apply Fin.ext
  match a' with
  | ⟨0, _⟩ => show 0 + 1 * 0 = 0; omega
  | ⟨1, _⟩ => show 0 + 1 * t.val = t.val; omega

/-- Position `(0, t)` of piece `n` of the argument row is element `(0, pos + t)` of the transposed argument;
    position `y` of piece `n` of the result is element `pos + y 0` of the result. -/
theorem in_emb (n : ℕ) (t : Fin 3200) (h : pos L n + t.val < 1600000) :
    (inM L n).view.emb (ix2 (0 : Fin 1) t) = ix2 (13 : Fin 22) (⟨pos L n + t.val, h⟩ : Fin 1600000) := by
  funext a'; apply Fin.ext
  match a' with
  | ⟨0, _⟩ => show 13 + 1 * 0 = 13; omega
  | ⟨1, _⟩ => show pos L n + 1 * t.val = pos L n + t.val; omega

theorem out_emb (n : ℕ) (y : S3200.Idx) (h : pos L n + (y 0).val < 1600000) :
    (outM L n).view.emb y = ix1 (⟨pos L n + (y 0).val, h⟩ : Fin 1600000) := by
  funext a'; apply Fin.ext
  match a' with
  | ⟨0, _⟩ => show pos L n + 1 * (y 0).val = pos L n + (y 0).val; omega

/-- Both lane-copy loops run 200 trips: 200 · 16 = 3200, the whole row. -/
theorem trips2 : k13_t2_loop.trips = 200 := by decide
theorem trips3 : k13_t3_loop.trips = 200 := by decide

/-- After all its trips a lane-copy loop has copied the whole row. -/
theorem lanes_all (a : Memref sig .scVector .vmem S8x3200 .f32) (b : Memref sig .scVector .vmem S25600 .f32)
    (ga : Buf (Elt F) (a.view.loc (thr d L))) (gb : Buf (Elt F) (b.view.loc (thr d L)))
    (h : Lanes d L a b ga gb k13_t2_loop.trips) : Lanes d L a b ga gb 200 := trips2 ▸ h
theorem lanes_all' (a : Memref sig .scVector .vmem S8x3200 .f32) (b : Memref sig .scVector .vmem S25600 .f32)
    (ga : Buf (Elt F) (a.view.loc (thr d L))) (gb : Buf (Elt F) (b.view.loc (thr d L)))
    (h : Lanes d L a b ga gb k13_t3_loop.trips) : Lanes d L a b ga gb 200 := trips3 ▸ h

/-- The write-out of a piece: the first 3200 elements of the flat staging array, which the 200 lane copies filled from
    row 0 of the staging array, which the fetch filled from piece `n` of row 13 of the transposed argument, land at
    piece `n` of the result, at the same positions of the row. -/
theorem out_written (a : Memref sig .scVector .vmem S8x3200 .f32) (b : Memref sig .scVector .vmem S25600 .f32) (n : ℕ)
    (ga : Buf (Elt F) (a.view.loc (thr d L))) (gb : Buf (Elt F) (b.view.loc (thr d L)))
    (f0 : Buf (Elt F) ((outM L n).view.loc (thr d L))) (w : S3200.Idx → Elt F .f32)
    (hw : ∀ y, w y = (stg b).view.read (Elt F) gb y) (hl : Lanes d L a b ga gb 200) (hr : InRow d L fx a ga n) (hv : valid L n) :
    ∀ i ∈ (outM L n).view.set, ((outM L n).view.writes (Elt F) f0 [⟨Rect.whole _, w⟩]) i = Cert.Spec.row 13 fx i := by
  intro i hi
  obtain ⟨y, -, rfl⟩ := Finset.mem_map.mp hi
  have hy : (y 0).val < 3200 := (y 0).isLt
  have hp : pos L n + (y 0).val < 1600000 := by unfold pos; omega
  have e1 : (outM L n).view.writes (Elt F) f0 [⟨Rect.whole _, w⟩] ((outM L n).view.emb y) = w y := by
    have h := View.read_writes_cons_emb (outM L n).view f0 (Rect.whole _) w [] y
    rw [Rect.emb_whole_apply] at h
    exact (cast_eq _ _).symm.trans ((View.read_apply _ _).symm.trans h)
  have e2 : (stg b).view.read (Elt F) gb y = b.view.read (Elt F) gb (ix1 (⟨(y 0).val, by omega⟩ : Fin 25600)) :=
    congrArg (b.view.read (Elt F) gb) (stg_emb y (by omega))
  have e3 : a.view.read (Elt F) ga (ix2 (0 : Fin 8) (⟨(y 0).val, hy⟩ : Fin 3200))
      = (inM L n).view.read (Elt F) fx (ix2 (0 : Fin 1) (⟨(y 0).val, hy⟩ : Fin 3200)) :=
    (congrArg (a.view.read (Elt F) ga) (row_emb ⟨(y 0).val, hy⟩).symm).trans (hr _)
  have e4 : (inM L n).view.read (Elt F) fx (ix2 (0 : Fin 1) (⟨(y 0).val, hy⟩ : Fin 3200))
      = fx (ix2 (13 : Fin 22) (⟨pos L n + (y 0).val, hp⟩ : Fin 1600000)) :=
    ((View.read_apply _ _).trans (cast_eq _ _)).trans (congrArg fx (in_emb L n ⟨(y 0).val, hy⟩ hp))
  have e5 : Cert.Spec.row 13 fx ((outM L n).view.emb y) = fx (ix2 (13 : Fin 22) (⟨pos L n + (y 0).val, hp⟩ : Fin 1600000)) :=
    (congrArg (Cert.Spec.row 13 fx) (out_emb L n y hp)).trans (Cert.Spec.row_apply 13 fx _)
  exact e1.trans ((hw y).trans (e2.trans ((hl _ hy (by omega)).trans (e3.trans (e4.trans e5.symm)))))

end Cert.Proof.TileVal13

end
-- ==== Proof.TileK13.lean ====
/-
  One vector subcore's task of copy kernel 13 (counting from 0), run symbolically: the two fetch slots and two write-out slots
  between trips of the main loop (what each transfer in flight will hand back, and what the staging buffers hold), the
  invariant of the main loop and of the two lane-copy loops, and the task's run — from the tile's pieces of row 13 of
  the transposed argument and of the result to the same pieces with the result holding the row's elements.
-/
import proofs.«206869_g37898791420194_cont_8to1_b_558_20_alg».proof.Proof.TileK13Defs
import proofs.«206869_g37898791420194_cont_8to1_b_558_20_alg».proof.Proof.TileVal13
noncomputable section

namespace Cert.Proof.TileK13

open Cert.KernelIdeal Cert.KernelIdeal.Gen Cert.Proof.TileVal13
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 22) (Elt F) ℕ UU ℕ
local notation "xtW" => (Memref.whole Cert.KernelIdeal.main_v0_scv : Memref Cert.KernelIdeal.sig Kind.scVector Space.hbm Cert.KernelIdeal.S22x1600000 EltTy.f32)
local notation "oW" => (Memref.whole Cert.KernelIdeal.main_v14_scv : Memref Cert.KernelIdeal.sig Kind.scVector Space.hbm Cert.KernelIdeal.S1600000 EltTy.f32)
local notation "a4" => (Memref.whole Cert.KernelIdeal.cc13_scratch0 : Memref Cert.KernelIdeal.sig Kind.scVector Space.vmem Cert.KernelIdeal.S8x3200 EltTy.f32)
local notation "a5" => (Memref.whole Cert.KernelIdeal.cc13_scratch1 : Memref Cert.KernelIdeal.sig Kind.scVector Space.vmem Cert.KernelIdeal.S8x3200 EltTy.f32)
local notation "a6" => (Memref.whole Cert.KernelIdeal.cc13_scratch2 : Memref Cert.KernelIdeal.sig Kind.scVector Space.vmem Cert.KernelIdeal.S25600 EltTy.f32)
local notation "a7" => (Memref.whole Cert.KernelIdeal.cc13_scratch3 : Memref Cert.KernelIdeal.sig Kind.scVector Space.vmem Cert.KernelIdeal.S25600 EltTy.f32)

variable [FloatOps F]

section Tile

variable (d : Dev nD) (L : grid13.Coords)
variable (O : CellTallies nD τ sig (HIx 22)) (W : Waits sig (HIx 22))
variable (fx : Buf (Elt F) ((xtW).view.loc (thr d L)))

/-- Piece `n` of the result at its final contents. -/
abbrev oqPiece (n : ℕ) : sProp 𝕄 := (outM L n).view.loc (thr d L) ↦[(outM L n).view.set]{fullShare} (Cert.Spec.row 13 fx)
theorem oQ_pos {n : ℕ} (v : valid L n) : oQ d L fx n = oqPiece d L fx n := if_pos v
theorem oQ_neg {n : ℕ} (v : ¬ valid L n) : oQ d L fx n = iprop(emp) := if_neg v

/-- A fetch slot, remembering that the staging row it will hand back holds the piece. -/
def inSlotV (a : Memref sig .scVector .vmem S8x3200 .f32) (sm : DmaSem sig) (n : ℕ) : sProp 𝕄 :=
  if valid L n then
    iprop(∃ g, ⌜InRow d L fx a g n⌝ ∗ Transfers.Flight countersEmb (thr d L) (SemLoc.dma sm) (default : HIx 22) NN
      iprop((a.view.loc (thr d L) ↦{fullShare} g) ∗ xtPiece d L fx n))
  else iprop((∃ g, a.view.loc (thr d L) ↦{fullShare} g) ∗ semVal (thr d L, SemLoc.dma sm) 0)

/-- A write-out slot: the piece in flight will come back holding the row's elements. -/
def outSlotV (a : Memref sig .scVector .vmem S25600 .f32) (sm : DmaSem sig) (m : ℕ) : sProp 𝕄 :=
  if 2 ≤ m ∧ valid L (m - 2) then
    iprop(∃ g, Transfers.Flight countersEmb (thr d L) (SemLoc.dma sm) (default : HIx 22) NN
        iprop(oqPiece d L fx (m - 2) ∗ ((stg a).view.loc (thr d L) ↦[(stg a).view.set]{fullShare} g))
      ∗ (a.view.loc (thr d L) ↦[Finset.univ \ (stg a).view.set]{fullShare} g))
  else iprop((∃ g, a.view.loc (thr d L) ↦{fullShare} g) ∗ semVal (thr d L, SemLoc.dma sm) 0)

theorem inSlotV_pos {a : Memref sig .scVector .vmem S8x3200 .f32} {sm : DmaSem sig} {n : ℕ} (v : valid L n) :
    inSlotV d L fx a sm n = iprop(∃ g, ⌜InRow d L fx a g n⌝ ∗ Transfers.Flight countersEmb (thr d L) (SemLoc.dma sm) (default : HIx 22) NN
      iprop((a.view.loc (thr d L) ↦{fullShare} g) ∗ xtPiece d L fx n)) := by unfold inSlotV; rw [if_pos v]
theorem inSlotV_neg {a : Memref sig .scVector .vmem S8x3200 .f32} {sm : DmaSem sig} {n : ℕ} (v : ¬ valid L n) :
    inSlotV d L fx a sm n = iprop((∃ g, a.view.loc (thr d L) ↦{fullShare} g) ∗ semVal (thr d L, SemLoc.dma sm) 0) := by
  unfold inSlotV; rw [if_neg v]
theorem outSlotV_pos {a : Memref sig .scVector .vmem S25600 .f32} {sm : DmaSem sig} {m : ℕ} (h : 2 ≤ m ∧ valid L (m - 2)) :
    outSlotV d L fx a sm m = iprop(∃ g, Transfers.Flight countersEmb (thr d L) (SemLoc.dma sm) (default : HIx 22) NN
        iprop(oqPiece d L fx (m - 2) ∗ ((stg a).view.loc (thr d L) ↦[(stg a).view.set]{fullShare} g))
      ∗ (a.view.loc (thr d L) ↦[Finset.univ \ (stg a).view.set]{fullShare} g)) := by unfold outSlotV; rw [if_pos h]
theorem outSlotV_neg {a : Memref sig .scVector .vmem S25600 .f32} {sm : DmaSem sig} {m : ℕ} (h : ¬ (2 ≤ m ∧ valid L (m - 2))) :
    outSlotV d L fx a sm m = iprop((∃ g, a.view.loc (thr d L) ↦{fullShare} g) ∗ semVal (thr d L, SemLoc.dma sm) 0) := by
  unfold outSlotV; rw [if_neg h]

/-- A fetch just issued: the staging row will hold what the transfer reads, which is the piece. -/
theorem fl_inV {off : Fin 2 → ℕ} {n : ℕ} (h : off = ![13, pos L n]) (p : ∀ a, off a + S1x3200.size a ≤ S22x1600000.size a) (v : valid L n)
    (a : Memref sig .scVector .vmem S8x3200 .f32) (sm : DmaSem sig) :
    (iprop(∃ (gold : Buf (Elt F) (a.view.loc (thr d L))) (w : S1x3200.Idx → Elt F .f32),
        ⌜∀ y, w y = ((xtW).slice (Rect.unit (s := S22x1600000) off S1x3200.size p) (fun _ => rfl)).view.read (Elt F) fx y⌝
        ∗ Transfers.Flight countersEmb (thr d L) (SemLoc.dma sm) (default : HIx 22) NN
          iprop((a.view.loc (thr d L) ↦{fullShare} a.view.writes (Elt F) gold [⟨rowRect, w⟩])
            ∗ (((xtW).slice (Rect.unit (s := S22x1600000) off S1x3200.size p) (fun _ => rfl)).view.loc (thr d L)
                ↦[((xtW).slice (Rect.unit (s := S22x1600000) off S1x3200.size p) (fun _ => rfl)).view.set]{fullShare} fx))) : sProp 𝕄)
      ⊢ inSlotV d L fx a sm n := by
  subst h
  rw [inSlotV_pos d L fx v]
  iintro ⟨%gold, %w, %hw, H⟩
  iexists _
  isplitr
  · ipureintro; exact inRow_fetch d L fx a gold w n hw
  · iexact H

set_option maxHeartbeats 4000000 in
/-- A write-out just issued from a flat staging buffer whose first 3200 elements are the staging row, itself piece
    `n` of the argument row: the piece of the result will hold the row's elements. -/
theorem fl_outV {off : Fin 1 → ℕ} {n : ℕ} (h : off = ![pos L n]) (p : ∀ a, off a + S3200.size a ≤ S1600000.size a) (v : valid L n)
    (ar : Memref sig .scVector .vmem S8x3200 .f32) (a : Memref sig .scVector .vmem S25600 .f32) (sm : DmaSem sig)
    (f0 : Buf (Elt F) ((oW).view.loc (thr d L))) (ga : Buf (Elt F) (ar.view.loc (thr d L))) (gb : Buf (Elt F) (a.view.loc (thr d L)))
    (hl : Lanes d L ar a ga gb 200) (hr : InRow d L fx ar ga n) :
    (iprop(∃ (w : S3200.Idx → Elt F .f32),
        ⌜∀ y, w y = (stg a).view.read (Elt F) gb y⌝
        ∗ Transfers.Flight countersEmb (thr d L) (SemLoc.dma sm) (default : HIx 22) NN
          iprop((((oW).slice (Rect.unit (s := S1600000) off S3200.size p) (fun _ => rfl)).view.loc (thr d L)
                ↦[((oW).slice (Rect.unit (s := S1600000) off S3200.size p) (fun _ => rfl)).view.set]{fullShare}
                  (((oW).slice (Rect.unit (s := S1600000) off S3200.size p) (fun _ => rfl)).view.writes (Elt F) f0 [⟨Rect.whole _, w⟩]))
            ∗ ((stg a).view.loc (thr d L) ↦[(stg a).view.set]{fullShare} gb))
        ∗ (a.view.loc (thr d L) ↦[Finset.univ \ (stg a).view.set]{fullShare} gb)) : sProp 𝕄)
      ⊢ outSlotV d L fx a sm (n + 2) := by
  subst h
  rw [outSlotV_pos d L fx (m := n + 2) ⟨by omega, by simpa using v⟩]
  iintro ⟨%w, %hw, H, R⟩
  have hD : (iprop(((outM L n).view.loc (thr d L) ↦[(outM L n).view.set]{fullShare} ((outM L n).view.writes (Elt F) f0 [⟨Rect.whole _, w⟩]))
          ∗ ((stg a).view.loc (thr d L) ↦[(stg a).view.set]{fullShare} gb)) : sProp 𝕄)
      ⊢ iprop(oqPiece d L fx (n + 2 - 2) ∗ ((stg a).view.loc (thr d L) ↦[(stg a).view.set]{fullShare} gb)) := by
    rw [Nat.add_sub_cancel]
    have e : (((outM L n).view.loc (thr d L) ↦[(outM L n).view.set]{fullShare} ((outM L n).view.writes (Elt F) f0 [⟨Rect.whole _, w⟩])) : sProp 𝕄)
        = oqPiece d L fx n := pointsTo_congr (out_written d L fx ar a n ga gb f0 w hw hl hr v)
    iintro ⟨H1, H2⟩
    isplitl [H1]
    · iapply (Entails.of_eq e); iexact H1
    · iexact H2
  iexists gb
  isplitl [H]
  · iapply (Transfers.Flight_mono countersEmb (thr d L) hD); iexact H
  · iexact R

/-- The result pieces outside the slots before trip `t`: those already written hold the row, the others some contents. -/
def oMix (t n : ℕ) : sProp 𝕄 := if n + 2 < 2 * t then oQ d L fx n else oP (F := F) d L n
theorem oMix_lt {t n : ℕ} (h : n + 2 < 2 * t) : oMix d L fx t n = oQ d L fx n := if_pos h
theorem oMix_ge {t n : ℕ} (h : ¬ n + 2 < 2 * t) : oMix d L fx t n = oP (F := F) d L n := if_neg h
theorem oMix_core (k : ℕ) : bigSep (oCore k) (oMix d L fx k) = bigSep (oCore k) (oMix d L fx (k + 1)) :=
  bigSep_congr fun n hn => by
    have hn' : n + 2 ≠ 2 * k ∧ n + 2 ≠ 2 * k + 1 ∧ n ≠ 2 * k ∧ n ≠ 2 * k + 1 := by
      simp only [oCore, Finset.mem_filter, Finset.mem_range] at hn; exact hn.2
    by_cases h : n + 2 < 2 * k
    · rw [oMix_lt d L fx h, oMix_lt d L fx (by omega)]
    · rw [oMix_ge d L fx h, oMix_ge d L fx (by omega)]
theorem oMix_zero : bigSep (oSet 0) (oMix d L fx 0) = bigSep (Finset.range 18) (oP (F := F) d L) := by
  rw [oSet_zero]; exact bigSep_congr fun n _ => oMix_ge d L fx (by omega)
theorem oMix_end : bigSep (oSet 8) (oMix d L fx 8) = bigSep (oSet 8) (oQ d L fx) :=
  bigSep_congr fun n hn => by
    have hn' : n < 18 ∧ n + 2 ≠ 16 ∧ n + 2 ≠ 17 := by simpa only [oSet, Finset.mem_filter, Finset.mem_range] using hn
    by_cases h : n + 2 < 2 * 8
    · exact oMix_lt d L fx h
    · rw [oMix_ge d L fx h, oP_neg (F := F) d L (by unfold valid; omega), oQ_neg d L fx (by unfold valid; omega)]

/-- The lane-copy loops: before trip `j` the first 16·j elements of the flat staging buffer are the staging row's. -/
def laneV0 (g4 : Buf (Elt F) ((a4).view.loc (thr d L))) (j : ℕ) (_ : PUnit) : sProp 𝕄 :=
  iprop(((a4).view.loc (thr d L) ↦{fullShare} g4) ∗ (∃ g, ((a6).view.loc (thr d L) ↦{fullShare} g) ∗ ⌜Lanes d L a4 a6 g4 g j⌝))
def laneV1 (g5 : Buf (Elt F) ((a5).view.loc (thr d L))) (j : ℕ) (_ : PUnit) : sProp 𝕄 :=
  iprop(((a5).view.loc (thr d L) ↦{fullShare} g5) ∗ (∃ g, ((a7).view.loc (thr d L) ↦{fullShare} g) ∗ ⌜Lanes d L a5 a7 g5 g j⌝))

def invV (t : ℕ) (_ : PUnit) : sProp 𝕄 :=
  iprop(Transfers.MayWaits (thr d L) (none : HIx 22) O
    ∗ (∃ W', ⌜∀ p ∈ W', p ∈ W ∨ p.2 = none⌝ ∗ owes (thr d L) O W')
    ∗ bigSep (xSet t) (xP d L fx) ∗ bigSep (oSet t) (oMix d L fx t)
    ∗ inSlotV d L fx a4 cc13_scratch4.sem (2 * t) ∗ outSlotV d L fx a6 cc13_scratch6.sem (2 * t)
    ∗ inSlotV d L fx a5 cc13_scratch5.sem (2 * t + 1) ∗ outSlotV d L fx a7 cc13_scratch7.sem (2 * t + 1))

/-- After the last trip nothing of the argument row is in a slot: the tile holds all its pieces. -/
theorem xRange_end : bigSep (xSet 8) (xP d L fx) ⊢ bigSep (Finset.range 18) (xP d L fx) := by
  rw [two_out (s := Finset.range 18) (a := 16) (b := 17) (by decide) (by decide) (by decide),
    show ((Finset.range 18).erase 16).erase 17 = xSet 8 by decide]
  iintro H
  isplitr; · iapply (Entails.of_eq (xP_neg d L fx (n := 16) (by unfold valid; omega)).symm); iempintro
  isplitr; · iapply (Entails.of_eq (xP_neg d L fx (n := 17) (by unfold valid; omega)).symm); iempintro
  iexact H
omit [FloatOps F] in
theorem oRange_end (Φ : ℕ → sProp 𝕄) : bigSep (Finset.range 18) Φ = iprop(Φ 14 ∗ Φ 15 ∗ bigSep (oSet 8) Φ) := by
  rw [two_out (s := Finset.range 18) (a := 14) (b := 15) (by decide) (by decide) (by decide),
    show ((Finset.range 18).erase 14).erase 15 = oSet 8 by decide]

/-- What the run starts from and ends with, beside an untouched rest `R`. -/
def runPre (R : sProp 𝕄) : sProp 𝕄 :=
    iprop(Transfers.MayWaits (thr d L) (none : HIx 22) O ∗ owes (thr d L) O W
        ∗ bigSep (Finset.range 18) (xP d L fx) ∗ bigSep (Finset.range 18) (oP (F := F) d L)
        ∗ (∃ g, (a4).view.loc (thr d L) ↦{fullShare} g) ∗ (∃ g, (a5).view.loc (thr d L) ↦{fullShare} g)
        ∗ (∃ g, (a6).view.loc (thr d L) ↦{fullShare} g) ∗ (∃ g, (a7).view.loc (thr d L) ↦{fullShare} g)
        ∗ semVal (thr d L, SemLoc.dma cc13_scratch4.sem) 0 ∗ semVal (thr d L, SemLoc.dma cc13_scratch5.sem) 0
        ∗ semVal (thr d L, SemLoc.dma cc13_scratch6.sem) 0 ∗ semVal (thr d L, SemLoc.dma cc13_scratch7.sem) 0 ∗ R)
def runPost (R : sProp 𝕄) : sProp 𝕄 :=
    iprop(bigSep (Finset.range 18) (xP d L fx) ∗ bigSep (Finset.range 18) (oQ d L fx)
            ∗ (∃ g, (a4).view.loc (thr d L) ↦{fullShare} g) ∗ (∃ g, (a5).view.loc (thr d L) ↦{fullShare} g)
            ∗ (∃ g, (a6).view.loc (thr d L) ↦{fullShare} g) ∗ (∃ g, (a7).view.loc (thr d L) ↦{fullShare} g)
            ∗ semVal (thr d L, SemLoc.dma cc13_scratch4.sem) 0 ∗ semVal (thr d L, SemLoc.dma cc13_scratch5.sem) 0
            ∗ semVal (thr d L, SemLoc.dma cc13_scratch6.sem) 0 ∗ semVal (thr d L, SemLoc.dma cc13_scratch7.sem) 0
            ∗ (∃ W', ⌜∀ p ∈ W', p ∈ W ∨ p.2 = none⌝ ∗ owes (thr d L) O W') ∗ R)

set_option maxHeartbeats 16000000 in
/-- The task's run: from its pieces of the argument row and of the result, the four staging buffers and the four
    semaphores at zero, to the same with every piece of the result holding the row's elements. -/
theorem tile_run (R : sProp 𝕄) :
    runPre d L O W fx R
      ⊢ wp frame (wpE (defs₀ (F := F)) 𝒱₀ (thr d L) none) Set.univ
          (cc13_sc_group L xtW (Memref.isWhole_whole _) oW (Memref.isWhole_whole _) a4 (Memref.isWhole_whole _) a5 (Memref.isWhole_whole _)
            a6 (Memref.isWhole_whole _) a7 (Memref.isWhole_whole _) cc13_scratch4 cc13_scratch5 cc13_scratch6 cc13_scratch7)
          fun _ => runPost d L O W fx R := by
  unfold runPre runPost
  have v0 : valid L 0 := Or.inl (by omega)
  have v1 : valid L 1 := Or.inl (by omega)
  have k13_h7 : k13_cond7 L = 1#1 := cond7_iff L
  iintro ⟨#Hmw, HO, HX, HOut, ⟨%g4, H4⟩, ⟨%g5, H5⟩, ⟨%g6, H6⟩, ⟨%g7, H7⟩, Hs8, Hs9, Hs10, Hs11, HR⟩
  ihave HX := (Entails.of_eq (xRange_split d L fx v0 v1)) $$ HX
  icases HX with ⟨X0, X1, HX⟩
  ihave X0 := (Entails.of_eq (in_congr d L (off_in0 L v0).symm (in_inb L _) (k13_off1_inb L 0) fx)) $$ X0
  ihave X1 := (Entails.of_eq (in_congr d L (off_in1 L v1).symm (in_inb L _) (k13_off1_inb L 1) fx)) $$ X1
  sl_unfold [cc13_sc_group]
  sl_exec
  ihave S8 := (fl_inV d L fx (off_in0 L v0) (k13_off1_inb L 0) v0 a4 cc13_scratch4.sem) $$ [Hs8]
  · iexists _, _
    isplitr
    rotate_left
    · iexact Hs8
    ipureintro; intro y; rfl
  ihave S9 := (fl_inV d L fx (off_in1 L v1) (k13_off1_inb L 1) v1 a5 cc13_scratch5.sem) $$ [Hs9]
  · iexists _, _
    isplitr
    rotate_left
    · iexact Hs9
    ipureintro; intro y; rfl
  sl_for (invV d L O W fx) $$ [HO HX HOut S8 S9 H6 H7 Hs10 Hs11]
  case region =>
    intro (k : Fin k13_t1_loop.trips) acc
    have hk : k.val < 8 := Nat.lt_of_lt_of_eq k.isLt trips1
    unfold invV
    iintro ⟨#Hmw, ⟨%W', %hW', HO⟩, HX, HOut, S8, S10, S9, S11⟩
    by_cases hk1 : 1 ≤ k.val
    · by_cases v3 : valid L (2 * k.val + 3)
      · -- the generic trip: both drains, both pieces worked, both next fetches issued
        have hk6 : k.val ≤ 6 := by unfold valid at v3; omega
        have k13_h1 : k13_cond1 k = 1#1 := (cond1_iff k).mpr (by omega)
        have k13_h2 : k13_cond2 L k = 1#1 := cond2_iff L k
        have k13_h3 : k13_cond3 L k = 1#1 := (cond3_iff L k).mpr (by omega)
        have k13_h4 : k13_cond4 k = 1#1 := (cond4_iff k).mpr (by omega)
        have k13_h5 : k13_cond5 L k = 1#1 := (cond5_iff L k).mpr (by first | (unfold valid big at *; omega) | (unfold big at *; omega) | omega)
        have k13_h6 : k13_cond6 L k = 1#1 := (cond6_iff L k).mpr (by first | (unfold valid big at *; omega) | (unfold big at *; omega) | omega)
        have v0 : valid L (2 * k.val) := by unfold valid big at *; omega
        have v1 : valid L (2 * k.val + 1) := by unfold valid big at *; omega
        have v2 : valid L (2 * k.val + 2) := by unfold valid big at *; omega
        have v3' : valid L (2 * k.val + 3) := by unfold valid big at *; omega
        have hm0 : 2 ≤ 2 * k.val ∧ valid L (2 * k.val - 2) := ⟨by omega, by unfold valid big at *; omega⟩
        have hm1 : 2 ≤ 2 * k.val + 1 ∧ valid L (2 * k.val + 1 - 2) := ⟨by omega, by unfold valid big at *; omega⟩
        ihave S8 := (Entails.of_eq (inSlotV_pos d L fx v0)) $$ S8
        icases S8 with ⟨%g4, %hin4, F8⟩
        ihave S9 := (Entails.of_eq (inSlotV_pos d L fx v1)) $$ S9
        icases S9 with ⟨%g5, %hin5, F9⟩
        ihave S10 := (Entails.of_eq (outSlotV_pos d L fx hm0)) $$ S10
        icases S10 with ⟨%g6, F10, R6⟩
        ihave S11 := (Entails.of_eq (outSlotV_pos d L fx hm1)) $$ S11
        icases S11 with ⟨%g7, F11, R7⟩
        ihave HX := (Entails.of_eq (xSet_out (xP d L fx) k.val hk)) $$ HX
        icases HX with ⟨X2, X3, HX⟩
        ihave X2 := (Entails.of_eq (xP_pos d L fx v2)) $$ X2
        ihave X2 := (Entails.of_eq (in_congr d L (off_6 L k v2).symm (in_inb L _) (k13_off6_inb L k k13_h3) fx)) $$ X2
        ihave X3 := (Entails.of_eq (xP_pos d L fx v3')) $$ X3
        ihave X3 := (Entails.of_eq (in_congr d L (off_11 L k v3').symm (in_inb L _) (k13_off11_inb L k k13_h6) fx)) $$ X3
        ihave HOut := (Entails.of_eq (oSet_out (oMix d L fx k.val) k.val hk)) $$ HOut
        icases HOut with ⟨Y0, Y1, HOut⟩
        ihave Y0 := (Entails.of_eq ((oMix_ge d L fx (t := k.val) (n := 2 * k.val) (by omega)).trans (oP_pos (F := F) d L v0))) $$ Y0
        icases Y0 with ⟨%f0, Y0⟩
        ihave Y0 := (Entails.of_eq (out_congr d L (off_5 L k v0).symm (out_inb L _) (k13_off5_inb L k k13_h2) f0)) $$ Y0
        ihave Y1 := (Entails.of_eq ((oMix_ge d L fx (t := k.val) (n := 2 * k.val + 1) (by omega)).trans (oP_pos (F := F) d L v1))) $$ Y1
        icases Y1 with ⟨%f1, Y1⟩
        ihave Y1 := (Entails.of_eq (out_congr d L (off_10 L k v1).symm (out_inb L _) (k13_off10_inb L k k13_h5) f1)) $$ Y1
        sl_exec
        sl_for (laneV0 d L g4) $$ [F8_dst R6]
        case region =>
          intro (j : Fin k13_t2_loop.trips) _
          unfold laneV0
          iintro ⟨HA, %g, HB, %hl⟩
          sl_exec
          sl_step
          isplitl [HA]; · iexact HA
          iexists _; isplitl [HB]; · iexact HB
          ipureintro; exact lanes_step d L a4 a6 g4 g j _ _ hl
        · unfold laneV0
          isplitl [F8_dst]; · iexact F8_dst
          iexists _; isplitl [R6]; · iexact R6
          ipureintro; exact lanes_zero d L a4 a6 g4 _
        iintro %_ HI
        unfold laneV0
        icases HI with ⟨H4, %g6', H6, %hl6⟩
        have hl6 : Lanes d L a4 a6 g4 g6' 200 := Eq.mp (congrArg (Lanes d L a4 a6 g4 g6') trips2) hl6
        sl_exec
        sl_for (laneV1 d L g5) $$ [F9_dst R7]
        case region =>
          intro (j : Fin k13_t3_loop.trips) _
          unfold laneV1
          iintro ⟨HA, %g, HB, %hl⟩
          sl_exec
          sl_step
          isplitl [HA]; · iexact HA
          iexists _; isplitl [HB]; · iexact HB
          ipureintro; exact lanes_step' d L a5 a7 g5 g j _ _ hl
        · unfold laneV1
          isplitl [F9_dst]; · iexact F9_dst
          iexists _; isplitl [R7]; · iexact R7
          ipureintro; exact lanes_zero d L a5 a7 g5 _
        iintro %_ HI
        unfold laneV1
        icases HI with ⟨H5, %g7', H7, %hl7⟩
        have hl7 : Lanes d L a5 a7 g5 g7' 200 := Eq.mp (congrArg (Lanes d L a5 a7 g5 g7') trips3) hl7
        sl_exec
        sl_step
        isplitr; · iexact Hmw
        isplitl [HO]
        · iexists _; isplitr
          rotate_left
          · iexact HO
          ipureintro; intro p hp
          rcases Finset.mem_insert.mp hp with rfl | hp
          · exact .inr rfl
          rcases Finset.mem_insert.mp hp with rfl | hp
          · exact .inr rfl
          rcases Finset.mem_insert.mp hp with rfl | hp
          · exact .inr rfl
          rcases Finset.mem_insert.mp hp with rfl | hp
          · exact .inr rfl
          exact hW' p hp
        isplitl [HX F8_src F9_src]
        · iapply (Entails.of_eq (xSet_in (xP d L fx) k.val hk).symm)
          isplitl [F8_src]; · iapply (Entails.of_eq (xP_pos d L fx v0).symm); iexact F8_src
          isplitl [F9_src]; · iapply (Entails.of_eq (xP_pos d L fx v1).symm); iexact F9_src
          iexact HX
        isplitl [HOut F10_dst F11_dst]
        · iapply (Entails.of_eq (oSet_in (oMix d L fx (k.val + 1)) k.val hk (by omega)).symm)
          isplitl [F10_dst]; · iapply (Entails.of_eq ((oMix_lt d L fx (t := k.val + 1) (n := 2 * k.val - 2) (by omega)).trans (oQ_pos d L fx hm0.2)).symm); iexact F10_dst
          isplitl [F11_dst]
          · iapply (Entails.of_eq ((oMix_lt d L fx (t := k.val + 1) (n := 2 * k.val - 1) (by omega)).trans (oQ_pos d L fx (n := 2 * k.val - 1) (by have := hm1.2; rwa [show 2 * k.val + 1 - 2 = 2 * k.val - 1 by omega] at this))).symm)
            iapply (Entails.of_eq (congrArg (oqPiece d L fx) (show 2 * k.val + 1 - 2 = 2 * k.val - 1 by omega))); iexact F11_dst
          iapply (Entails.of_eq (oMix_core d L fx k.val)); iexact HOut
        isplitl [F8]
        · iapply (Entails.of_eq (congrArg (inSlotV d L fx a4 cc13_scratch4.sem) (show 2 * k.val + 2 = 2 * (k.val + 1) by ring)))
          iapply (fl_inV d L fx (off_6 L k v2) (k13_off6_inb L k k13_h3) v2 a4 cc13_scratch4.sem); iexists _, _
          isplitr
          rotate_left
          · iexact F8
          ipureintro; intro y; rfl
        isplitl [F10 H6]
        · iapply (Entails.of_eq (congrArg (outSlotV d L fx a6 cc13_scratch6.sem) (show 2 * k.val + 2 = 2 * (k.val + 1) by ring)))
          iapply (fl_outV d L fx (off_5 L k v0) (k13_off5_inb L k k13_h2) v0 a4 a6 cc13_scratch6.sem f0 g4 g6' hl6 hin4); iexists _
          isplitr
          rotate_left
          · isplitl [F10]; · iexact F10
            iexact H6
          ipureintro; intro y; rfl
        isplitl [F9]
        · iapply (Entails.of_eq (congrArg (inSlotV d L fx a5 cc13_scratch5.sem) (show 2 * k.val + 3 = 2 * (k.val + 1) + 1 by ring)))
          iapply (fl_inV d L fx (off_11 L k v3') (k13_off11_inb L k k13_h6) v3' a5 cc13_scratch5.sem); iexists _, _
          isplitr
          rotate_left
          · iexact F9
          ipureintro; intro y; rfl
        · iapply (Entails.of_eq (congrArg (outSlotV d L fx a7 cc13_scratch7.sem) (show 2 * k.val + 1 + 2 = 2 * (k.val + 1) + 1 by ring)))
          iapply (fl_outV d L fx (off_10 L k v1) (k13_off10_inb L k k13_h5) v1 a5 a7 cc13_scratch7.sem f1 g5 g7' hl7 hin5); iexists _
          isplitr
          rotate_left
          · isplitl [F11]; · iexact F11
            iexact H7
          ipureintro; intro y; rfl
      · by_cases h6 : k.val = 6
        · have hb : ¬ big L := fun hb => v3 (Or.inr ⟨by omega, hb⟩)
          -- trip 6 of a tile with fifteen pieces: no sixteenth piece to fetch
          have k13_h1 : k13_cond1 k = 1#1 := (cond1_iff k).mpr (by omega)
          have k13_h2 : k13_cond2 L k = 1#1 := cond2_iff L k
          have k13_h3 : k13_cond3 L k = 1#1 := (cond3_iff L k).mpr (by omega)
          have k13_h4 : k13_cond4 k = 1#1 := (cond4_iff k).mpr (by omega)
          have k13_h5 : k13_cond5 L k = 1#1 := (cond5_iff L k).mpr (by first | (unfold valid big at *; omega) | (unfold big at *; omega) | omega)
          have k13_h6 : ¬ k13_cond6 L k = 1#1 := fun h => absurd ((cond6_iff L k).mp h) (by first | (unfold valid big at *; omega) | (unfold big at *; omega) | omega)
          have v0 : valid L (2 * k.val) := by unfold valid big at *; omega
          have v1 : valid L (2 * k.val + 1) := by unfold valid big at *; omega
          have v2 : valid L (2 * k.val + 2) := by unfold valid big at *; omega
          have v3' : ¬ valid L (2 * k.val + 3) := by unfold valid big at *; omega
          have hm0 : 2 ≤ 2 * k.val ∧ valid L (2 * k.val - 2) := ⟨by omega, by unfold valid big at *; omega⟩
          have hm1 : 2 ≤ 2 * k.val + 1 ∧ valid L (2 * k.val + 1 - 2) := ⟨by omega, by unfold valid big at *; omega⟩
          ihave S8 := (Entails.of_eq (inSlotV_pos d L fx v0)) $$ S8
          icases S8 with ⟨%g4, %hin4, F8⟩
          ihave S9 := (Entails.of_eq (inSlotV_pos d L fx v1)) $$ S9
          icases S9 with ⟨%g5, %hin5, F9⟩
          ihave S10 := (Entails.of_eq (outSlotV_pos d L fx hm0)) $$ S10
          icases S10 with ⟨%g6, F10, R6⟩
          ihave S11 := (Entails.of_eq (outSlotV_pos d L fx hm1)) $$ S11
          icases S11 with ⟨%g7, F11, R7⟩
          ihave HX := (Entails.of_eq (xSet_out (xP d L fx) k.val hk)) $$ HX
          icases HX with ⟨X2, -, HX⟩
          ihave X2 := (Entails.of_eq (xP_pos d L fx v2)) $$ X2
          ihave X2 := (Entails.of_eq (in_congr d L (off_6 L k v2).symm (in_inb L _) (k13_off6_inb L k k13_h3) fx)) $$ X2
          ihave HOut := (Entails.of_eq (oSet_out (oMix d L fx k.val) k.val hk)) $$ HOut
          icases HOut with ⟨Y0, Y1, HOut⟩
          ihave Y0 := (Entails.of_eq ((oMix_ge d L fx (t := k.val) (n := 2 * k.val) (by omega)).trans (oP_pos (F := F) d L v0))) $$ Y0
          icases Y0 with ⟨%f0, Y0⟩
          ihave Y0 := (Entails.of_eq (out_congr d L (off_5 L k v0).symm (out_inb L _) (k13_off5_inb L k k13_h2) f0)) $$ Y0
          ihave Y1 := (Entails.of_eq ((oMix_ge d L fx (t := k.val) (n := 2 * k.val + 1) (by omega)).trans (oP_pos (F := F) d L v1))) $$ Y1
          icases Y1 with ⟨%f1, Y1⟩
          ihave Y1 := (Entails.of_eq (out_congr d L (off_10 L k v1).symm (out_inb L _) (k13_off10_inb L k k13_h5) f1)) $$ Y1
          sl_exec
          sl_for (laneV0 d L g4) $$ [F8_dst R6]
          case region =>
            intro (j : Fin k13_t2_loop.trips) _
            unfold laneV0
            iintro ⟨HA, %g, HB, %hl⟩
            sl_exec
            sl_step
            isplitl [HA]; · iexact HA
            iexists _; isplitl [HB]; · iexact HB
            ipureintro; exact lanes_step d L a4 a6 g4 g j _ _ hl
          · unfold laneV0
            isplitl [F8_dst]; · iexact F8_dst
            iexists _; isplitl [R6]; · iexact R6
            ipureintro; exact lanes_zero d L a4 a6 g4 _
          iintro %_ HI
          unfold laneV0
          icases HI with ⟨H4, %g6', H6, %hl6⟩
          have hl6 : Lanes d L a4 a6 g4 g6' 200 := Eq.mp (congrArg (Lanes d L a4 a6 g4 g6') trips2) hl6
          sl_exec
          sl_for (laneV1 d L g5) $$ [F9_dst R7]
          case region =>
            intro (j : Fin k13_t3_loop.trips) _
            unfold laneV1
            iintro ⟨HA, %g, HB, %hl⟩
            sl_exec
            sl_step
            isplitl [HA]; · iexact HA
            iexists _; isplitl [HB]; · iexact HB
            ipureintro; exact lanes_step' d L a5 a7 g5 g j _ _ hl
          · unfold laneV1
            isplitl [F9_dst]; · iexact F9_dst
            iexists _; isplitl [R7]; · iexact R7
            ipureintro; exact lanes_zero d L a5 a7 g5 _
          iintro %_ HI
          unfold laneV1
          icases HI with ⟨H5, %g7', H7, %hl7⟩
          have hl7 : Lanes d L a5 a7 g5 g7' 200 := Eq.mp (congrArg (Lanes d L a5 a7 g5 g7') trips3) hl7
          sl_exec
          sl_step
          isplitr; · iexact Hmw
          isplitl [HO]
          · iexists _; isplitr
            rotate_left
            · iexact HO
            ipureintro; intro p hp
            rcases Finset.mem_insert.mp hp with rfl | hp
            · exact .inr rfl
            rcases Finset.mem_insert.mp hp with rfl | hp
            · exact .inr rfl
            rcases Finset.mem_insert.mp hp with rfl | hp
            · exact .inr rfl
            rcases Finset.mem_insert.mp hp with rfl | hp
            · exact .inr rfl
            exact hW' p hp
          isplitl [HX F8_src F9_src]
          · iapply (Entails.of_eq (xSet_in (xP d L fx) k.val hk).symm)
            isplitl [F8_src]; · iapply (Entails.of_eq (xP_pos d L fx v0).symm); iexact F8_src
            isplitl [F9_src]; · iapply (Entails.of_eq (xP_pos d L fx v1).symm); iexact F9_src
            iexact HX
          isplitl [HOut F10_dst F11_dst]
          · iapply (Entails.of_eq (oSet_in (oMix d L fx (k.val + 1)) k.val hk (by omega)).symm)
            isplitl [F10_dst]; · iapply (Entails.of_eq ((oMix_lt d L fx (t := k.val + 1) (n := 2 * k.val - 2) (by omega)).trans (oQ_pos d L fx hm0.2)).symm); iexact F10_dst
            isplitl [F11_dst]
            · iapply (Entails.of_eq ((oMix_lt d L fx (t := k.val + 1) (n := 2 * k.val - 1) (by omega)).trans (oQ_pos d L fx (n := 2 * k.val - 1) (by have := hm1.2; rwa [show 2 * k.val + 1 - 2 = 2 * k.val - 1 by omega] at this))).symm)
              iapply (Entails.of_eq (congrArg (oqPiece d L fx) (show 2 * k.val + 1 - 2 = 2 * k.val - 1 by omega))); iexact F11_dst
            iapply (Entails.of_eq (oMix_core d L fx k.val)); iexact HOut
          isplitl [F8]
          · iapply (Entails.of_eq (congrArg (inSlotV d L fx a4 cc13_scratch4.sem) (show 2 * k.val + 2 = 2 * (k.val + 1) by ring)))
            iapply (fl_inV d L fx (off_6 L k v2) (k13_off6_inb L k k13_h3) v2 a4 cc13_scratch4.sem); iexists _, _
            isplitr
            rotate_left
            · iexact F8
            ipureintro; intro y; rfl
          isplitl [F10 H6]
          · iapply (Entails.of_eq (congrArg (outSlotV d L fx a6 cc13_scratch6.sem) (show 2 * k.val + 2 = 2 * (k.val + 1) by ring)))
            iapply (fl_outV d L fx (off_5 L k v0) (k13_off5_inb L k k13_h2) v0 a4 a6 cc13_scratch6.sem f0 g4 g6' hl6 hin4); iexists _
            isplitr
            rotate_left
            · isplitl [F10]; · iexact F10
              iexact H6
            ipureintro; intro y; rfl
          isplitl [H5 F9]
          · iapply (Entails.of_eq (congrArg (inSlotV d L fx a5 cc13_scratch5.sem) (show 2 * k.val + 3 = 2 * (k.val + 1) + 1 by ring)))
            iapply (Entails.of_eq (inSlotV_neg d L fx v3').symm)
            isplitl [H5]; · iexists _; iexact H5
            iexact F9
          · iapply (Entails.of_eq (congrArg (outSlotV d L fx a7 cc13_scratch7.sem) (show 2 * k.val + 1 + 2 = 2 * (k.val + 1) + 1 by ring)))
            iapply (fl_outV d L fx (off_10 L k v1) (k13_off10_inb L k k13_h5) v1 a5 a7 cc13_scratch7.sem f1 g5 g7' hl7 hin5); iexists _
            isplitr
            rotate_left
            · isplitl [F11]; · iexact F11
              iexact H7
            ipureintro; intro y; rfl
        · have h7 : k.val = 7 := by unfold valid at v3; omega
          by_cases hb : big L
          · -- the last trip of a tile with sixteen pieces: nothing more to fetch
            have k13_h1 : k13_cond1 k = 1#1 := (cond1_iff k).mpr (by omega)
            have k13_h2 : k13_cond2 L k = 1#1 := cond2_iff L k
            have k13_h3 : ¬ k13_cond3 L k = 1#1 := fun h => absurd ((cond3_iff L k).mp h) (by omega)
            have k13_h4 : k13_cond4 k = 1#1 := (cond4_iff k).mpr (by omega)
            have k13_h5 : k13_cond5 L k = 1#1 := (cond5_iff L k).mpr (by first | (unfold valid big at *; omega) | (unfold big at *; omega) | omega)
            have k13_h6 : ¬ k13_cond6 L k = 1#1 := fun h => absurd ((cond6_iff L k).mp h) (by first | (unfold valid big at *; omega) | (unfold big at *; omega) | omega)
            have v0 : valid L (2 * k.val) := by unfold valid big at *; omega
            have v1 : valid L (2 * k.val + 1) := by unfold valid big at *; omega
            have v2 : ¬ valid L (2 * k.val + 2) := by unfold valid big at *; omega
            have v3' : ¬ valid L (2 * k.val + 3) := by unfold valid big at *; omega
            have hm0 : 2 ≤ 2 * k.val ∧ valid L (2 * k.val - 2) := ⟨by omega, by unfold valid big at *; omega⟩
            have hm1 : 2 ≤ 2 * k.val + 1 ∧ valid L (2 * k.val + 1 - 2) := ⟨by omega, by unfold valid big at *; omega⟩
            ihave S8 := (Entails.of_eq (inSlotV_pos d L fx v0)) $$ S8
            icases S8 with ⟨%g4, %hin4, F8⟩
            ihave S9 := (Entails.of_eq (inSlotV_pos d L fx v1)) $$ S9
            icases S9 with ⟨%g5, %hin5, F9⟩
            ihave S10 := (Entails.of_eq (outSlotV_pos d L fx hm0)) $$ S10
            icases S10 with ⟨%g6, F10, R6⟩
            ihave S11 := (Entails.of_eq (outSlotV_pos d L fx hm1)) $$ S11
            icases S11 with ⟨%g7, F11, R7⟩
            ihave HX := (Entails.of_eq (xSet_out (xP d L fx) k.val hk)) $$ HX
            icases HX with ⟨-, -, HX⟩
            ihave HOut := (Entails.of_eq (oSet_out (oMix d L fx k.val) k.val hk)) $$ HOut
            icases HOut with ⟨Y0, Y1, HOut⟩
            ihave Y0 := (Entails.of_eq ((oMix_ge d L fx (t := k.val) (n := 2 * k.val) (by omega)).trans (oP_pos (F := F) d L v0))) $$ Y0
            icases Y0 with ⟨%f0, Y0⟩
            ihave Y0 := (Entails.of_eq (out_congr d L (off_5 L k v0).symm (out_inb L _) (k13_off5_inb L k k13_h2) f0)) $$ Y0
            ihave Y1 := (Entails.of_eq ((oMix_ge d L fx (t := k.val) (n := 2 * k.val + 1) (by omega)).trans (oP_pos (F := F) d L v1))) $$ Y1
            icases Y1 with ⟨%f1, Y1⟩
            ihave Y1 := (Entails.of_eq (out_congr d L (off_10 L k v1).symm (out_inb L _) (k13_off10_inb L k k13_h5) f1)) $$ Y1
            sl_exec
            sl_for (laneV0 d L g4) $$ [F8_dst R6]
            case region =>
              intro (j : Fin k13_t2_loop.trips) _
              unfold laneV0
              iintro ⟨HA, %g, HB, %hl⟩
              sl_exec
              sl_step
              isplitl [HA]; · iexact HA
              iexists _; isplitl [HB]; · iexact HB
              ipureintro; exact lanes_step d L a4 a6 g4 g j _ _ hl
            · unfold laneV0
              isplitl [F8_dst]; · iexact F8_dst
              iexists _; isplitl [R6]; · iexact R6
              ipureintro; exact lanes_zero d L a4 a6 g4 _
            iintro %_ HI
            unfold laneV0
            icases HI with ⟨H4, %g6', H6, %hl6⟩
            have hl6 : Lanes d L a4 a6 g4 g6' 200 := Eq.mp (congrArg (Lanes d L a4 a6 g4 g6') trips2) hl6
            sl_exec
            sl_for (laneV1 d L g5) $$ [F9_dst R7]
            case region =>
              intro (j : Fin k13_t3_loop.trips) _
              unfold laneV1
              iintro ⟨HA, %g, HB, %hl⟩
              sl_exec
              sl_step
              isplitl [HA]; · iexact HA
              iexists _; isplitl [HB]; · iexact HB
              ipureintro; exact lanes_step' d L a5 a7 g5 g j _ _ hl
            · unfold laneV1
              isplitl [F9_dst]; · iexact F9_dst
              iexists _; isplitl [R7]; · iexact R7
              ipureintro; exact lanes_zero d L a5 a7 g5 _
            iintro %_ HI
            unfold laneV1
            icases HI with ⟨H5, %g7', H7, %hl7⟩
            have hl7 : Lanes d L a5 a7 g5 g7' 200 := Eq.mp (congrArg (Lanes d L a5 a7 g5 g7') trips3) hl7
            sl_exec
            sl_step
            isplitr; · iexact Hmw
            isplitl [HO]
            · iexists _; isplitr
              rotate_left
              · iexact HO
              ipureintro; intro p hp
              rcases Finset.mem_insert.mp hp with rfl | hp
              · exact .inr rfl
              rcases Finset.mem_insert.mp hp with rfl | hp
              · exact .inr rfl
              rcases Finset.mem_insert.mp hp with rfl | hp
              · exact .inr rfl
              rcases Finset.mem_insert.mp hp with rfl | hp
              · exact .inr rfl
              exact hW' p hp
            isplitl [HX F8_src F9_src]
            · iapply (Entails.of_eq (xSet_in (xP d L fx) k.val hk).symm)
              isplitl [F8_src]; · iapply (Entails.of_eq (xP_pos d L fx v0).symm); iexact F8_src
              isplitl [F9_src]; · iapply (Entails.of_eq (xP_pos d L fx v1).symm); iexact F9_src
              iexact HX
            isplitl [HOut F10_dst F11_dst]
            · iapply (Entails.of_eq (oSet_in (oMix d L fx (k.val + 1)) k.val hk (by omega)).symm)
              isplitl [F10_dst]; · iapply (Entails.of_eq ((oMix_lt d L fx (t := k.val + 1) (n := 2 * k.val - 2) (by omega)).trans (oQ_pos d L fx hm0.2)).symm); iexact F10_dst
              isplitl [F11_dst]
              · iapply (Entails.of_eq ((oMix_lt d L fx (t := k.val + 1) (n := 2 * k.val - 1) (by omega)).trans (oQ_pos d L fx (n := 2 * k.val - 1) (by have := hm1.2; rwa [show 2 * k.val + 1 - 2 = 2 * k.val - 1 by omega] at this))).symm)
                iapply (Entails.of_eq (congrArg (oqPiece d L fx) (show 2 * k.val + 1 - 2 = 2 * k.val - 1 by omega))); iexact F11_dst
              iapply (Entails.of_eq (oMix_core d L fx k.val)); iexact HOut
            isplitl [H4 F8]
            · iapply (Entails.of_eq (congrArg (inSlotV d L fx a4 cc13_scratch4.sem) (show 2 * k.val + 2 = 2 * (k.val + 1) by ring)))
              iapply (Entails.of_eq (inSlotV_neg d L fx v2).symm)
              isplitl [H4]; · iexists _; iexact H4
              iexact F8
            isplitl [F10 H6]
            · iapply (Entails.of_eq (congrArg (outSlotV d L fx a6 cc13_scratch6.sem) (show 2 * k.val + 2 = 2 * (k.val + 1) by ring)))
              iapply (fl_outV d L fx (off_5 L k v0) (k13_off5_inb L k k13_h2) v0 a4 a6 cc13_scratch6.sem f0 g4 g6' hl6 hin4); iexists _
              isplitr
              rotate_left
              · isplitl [F10]; · iexact F10
                iexact H6
              ipureintro; intro y; rfl
            isplitl [H5 F9]
            · iapply (Entails.of_eq (congrArg (inSlotV d L fx a5 cc13_scratch5.sem) (show 2 * k.val + 3 = 2 * (k.val + 1) + 1 by ring)))
              iapply (Entails.of_eq (inSlotV_neg d L fx v3').symm)
              isplitl [H5]; · iexists _; iexact H5
              iexact F9
            · iapply (Entails.of_eq (congrArg (outSlotV d L fx a7 cc13_scratch7.sem) (show 2 * k.val + 1 + 2 = 2 * (k.val + 1) + 1 by ring)))
              iapply (fl_outV d L fx (off_10 L k v1) (k13_off10_inb L k k13_h5) v1 a5 a7 cc13_scratch7.sem f1 g5 g7' hl7 hin5); iexists _
              isplitr
              rotate_left
              · isplitl [F11]; · iexact F11
                iexact H7
              ipureintro; intro y; rfl
          · -- the last trip of a tile with fifteen pieces: the second slot only drains
            have k13_h1 : k13_cond1 k = 1#1 := (cond1_iff k).mpr (by omega)
            have k13_h2 : k13_cond2 L k = 1#1 := cond2_iff L k
            have k13_h3 : ¬ k13_cond3 L k = 1#1 := fun h => absurd ((cond3_iff L k).mp h) (by omega)
            have k13_h4 : k13_cond4 k = 1#1 := (cond4_iff k).mpr (by omega)
            have k13_h5 : ¬ k13_cond5 L k = 1#1 := fun h => absurd ((cond5_iff L k).mp h) (by first | (unfold valid big at *; omega) | (unfold big at *; omega) | omega)
            have k13_h6 : ¬ k13_cond6 L k = 1#1 := fun h => absurd ((cond6_iff L k).mp h) (by first | (unfold valid big at *; omega) | (unfold big at *; omega) | omega)
            have v0 : valid L (2 * k.val) := by unfold valid big at *; omega
            have v1 : ¬ valid L (2 * k.val + 1) := by unfold valid big at *; omega
            have v2 : ¬ valid L (2 * k.val + 2) := by unfold valid big at *; omega
            have v3' : ¬ valid L (2 * k.val + 3) := by unfold valid big at *; omega
            have hm0 : 2 ≤ 2 * k.val ∧ valid L (2 * k.val - 2) := ⟨by omega, by unfold valid big at *; omega⟩
            have hm1 : 2 ≤ 2 * k.val + 1 ∧ valid L (2 * k.val + 1 - 2) := ⟨by omega, by unfold valid big at *; omega⟩
            ihave S8 := (Entails.of_eq (inSlotV_pos d L fx v0)) $$ S8
            icases S8 with ⟨%g4, %hin4, F8⟩
            ihave S9 := (Entails.of_eq (inSlotV_neg d L fx v1)) $$ S9
            icases S9 with ⟨⟨%g5, H5⟩, F9⟩
            ihave S10 := (Entails.of_eq (outSlotV_pos d L fx hm0)) $$ S10
            icases S10 with ⟨%g6, F10, R6⟩
            ihave S11 := (Entails.of_eq (outSlotV_pos d L fx hm1)) $$ S11
            icases S11 with ⟨%g7, F11, R7⟩
            ihave HX := (Entails.of_eq (xSet_out (xP d L fx) k.val hk)) $$ HX
            icases HX with ⟨-, -, HX⟩
            ihave HOut := (Entails.of_eq (oSet_out (oMix d L fx k.val) k.val hk)) $$ HOut
            icases HOut with ⟨Y0, -, HOut⟩
            ihave Y0 := (Entails.of_eq ((oMix_ge d L fx (t := k.val) (n := 2 * k.val) (by omega)).trans (oP_pos (F := F) d L v0))) $$ Y0
            icases Y0 with ⟨%f0, Y0⟩
            ihave Y0 := (Entails.of_eq (out_congr d L (off_5 L k v0).symm (out_inb L _) (k13_off5_inb L k k13_h2) f0)) $$ Y0
            sl_exec
            sl_for (laneV0 d L g4) $$ [F8_dst R6]
            case region =>
              intro (j : Fin k13_t2_loop.trips) _
              unfold laneV0
              iintro ⟨HA, %g, HB, %hl⟩
              sl_exec
              sl_step
              isplitl [HA]; · iexact HA
              iexists _; isplitl [HB]; · iexact HB
              ipureintro; exact lanes_step d L a4 a6 g4 g j _ _ hl
            · unfold laneV0
              isplitl [F8_dst]; · iexact F8_dst
              iexists _; isplitl [R6]; · iexact R6
              ipureintro; exact lanes_zero d L a4 a6 g4 _
            iintro %_ HI
            unfold laneV0
            icases HI with ⟨H4, %g6', H6, %hl6⟩
            have hl6 : Lanes d L a4 a6 g4 g6' 200 := Eq.mp (congrArg (Lanes d L a4 a6 g4 g6') trips2) hl6
            sl_exec
            sl_step
            isplitr; · iexact Hmw
            isplitl [HO]
            · iexists _; isplitr
              rotate_left
              · iexact HO
              ipureintro; intro p hp
              rcases Finset.mem_insert.mp hp with rfl | hp
              · exact .inr rfl
              rcases Finset.mem_insert.mp hp with rfl | hp
              · exact .inr rfl
              rcases Finset.mem_insert.mp hp with rfl | hp
              · exact .inr rfl
              exact hW' p hp
            isplitl [HX F8_src]
            · iapply (Entails.of_eq (xSet_in (xP d L fx) k.val hk).symm)
              isplitl [F8_src]; · iapply (Entails.of_eq (xP_pos d L fx v0).symm); iexact F8_src
              isplitr; · iapply (Entails.of_eq (xP_neg d L fx v1).symm); iempintro
              iexact HX
            isplitl [HOut F10_dst F11_dst]
            · iapply (Entails.of_eq (oSet_in (oMix d L fx (k.val + 1)) k.val hk (by omega)).symm)
              isplitl [F10_dst]; · iapply (Entails.of_eq ((oMix_lt d L fx (t := k.val + 1) (n := 2 * k.val - 2) (by omega)).trans (oQ_pos d L fx hm0.2)).symm); iexact F10_dst
              isplitl [F11_dst]
              · iapply (Entails.of_eq ((oMix_lt d L fx (t := k.val + 1) (n := 2 * k.val - 1) (by omega)).trans (oQ_pos d L fx (n := 2 * k.val - 1) (by have := hm1.2; rwa [show 2 * k.val + 1 - 2 = 2 * k.val - 1 by omega] at this))).symm)
                iapply (Entails.of_eq (congrArg (oqPiece d L fx) (show 2 * k.val + 1 - 2 = 2 * k.val - 1 by omega))); iexact F11_dst
              iapply (Entails.of_eq (oMix_core d L fx k.val)); iexact HOut
            isplitl [H4 F8]
            · iapply (Entails.of_eq (congrArg (inSlotV d L fx a4 cc13_scratch4.sem) (show 2 * k.val + 2 = 2 * (k.val + 1) by ring)))
              iapply (Entails.of_eq (inSlotV_neg d L fx v2).symm)
              isplitl [H4]; · iexists _; iexact H4
              iexact F8
            isplitl [F10 H6]
            · iapply (Entails.of_eq (congrArg (outSlotV d L fx a6 cc13_scratch6.sem) (show 2 * k.val + 2 = 2 * (k.val + 1) by ring)))
              iapply (fl_outV d L fx (off_5 L k v0) (k13_off5_inb L k k13_h2) v0 a4 a6 cc13_scratch6.sem f0 g4 g6' hl6 hin4); iexists _
              isplitr
              rotate_left
              · isplitl [F10]; · iexact F10
                iexact H6
              ipureintro; intro y; rfl
            isplitl [H5 F9]
            · iapply (Entails.of_eq (congrArg (inSlotV d L fx a5 cc13_scratch5.sem) (show 2 * k.val + 3 = 2 * (k.val + 1) + 1 by ring)))
              iapply (Entails.of_eq (inSlotV_neg d L fx v3').symm)
              isplitl [H5]; · iexists _; iexact H5
              iexact F9
            · iapply (Entails.of_eq (outSlotV_neg d L fx (m := 2 * (k.val + 1) + 1) (by intro h; apply v1; have := h.2; rwa [show 2 * (k.val + 1) + 1 - 2 = 2 * k.val + 1 by omega] at this)).symm)
              isplitl [R7]; · iexists _; iexact R7
              iexact F11
    · have hk0 : k.val = 0 := by omega
      -- the first trip: nothing to drain
      have k13_h1 : ¬ k13_cond1 k = 1#1 := fun h => absurd ((cond1_iff k).mp h) (by omega)
      have k13_h2 : k13_cond2 L k = 1#1 := cond2_iff L k
      have k13_h3 : k13_cond3 L k = 1#1 := (cond3_iff L k).mpr (by omega)
      have k13_h4 : ¬ k13_cond4 k = 1#1 := fun h => absurd ((cond4_iff k).mp h) (by omega)
      have k13_h5 : k13_cond5 L k = 1#1 := (cond5_iff L k).mpr (by first | (unfold valid big at *; omega) | (unfold big at *; omega) | omega)
      have k13_h6 : k13_cond6 L k = 1#1 := (cond6_iff L k).mpr (by first | (unfold valid big at *; omega) | (unfold big at *; omega) | omega)
      have v0 : valid L (2 * k.val) := by unfold valid big at *; omega
      have v1 : valid L (2 * k.val + 1) := by unfold valid big at *; omega
      have v2 : valid L (2 * k.val + 2) := by unfold valid big at *; omega
      have v3' : valid L (2 * k.val + 3) := by unfold valid big at *; omega
      have hm0 : ¬ (2 ≤ 2 * k.val ∧ valid L (2 * k.val - 2)) := by omega
      have hm1 : ¬ (2 ≤ 2 * k.val + 1 ∧ valid L (2 * k.val + 1 - 2)) := by omega
      ihave S8 := (Entails.of_eq (inSlotV_pos d L fx v0)) $$ S8
      icases S8 with ⟨%g4, %hin4, F8⟩
      ihave S9 := (Entails.of_eq (inSlotV_pos d L fx v1)) $$ S9
      icases S9 with ⟨%g5, %hin5, F9⟩
      ihave S10 := (Entails.of_eq (outSlotV_neg d L fx hm0)) $$ S10
      icases S10 with ⟨⟨%g6, R6⟩, F10⟩
      ihave S11 := (Entails.of_eq (outSlotV_neg d L fx hm1)) $$ S11
      icases S11 with ⟨⟨%g7, R7⟩, F11⟩
      ihave HX := (Entails.of_eq (xSet_out (xP d L fx) k.val hk)) $$ HX
      icases HX with ⟨X2, X3, HX⟩
      ihave X2 := (Entails.of_eq (xP_pos d L fx v2)) $$ X2
      ihave X2 := (Entails.of_eq (in_congr d L (off_6 L k v2).symm (in_inb L _) (k13_off6_inb L k k13_h3) fx)) $$ X2
      ihave X3 := (Entails.of_eq (xP_pos d L fx v3')) $$ X3
      ihave X3 := (Entails.of_eq (in_congr d L (off_11 L k v3').symm (in_inb L _) (k13_off11_inb L k k13_h6) fx)) $$ X3
      ihave HOut := (Entails.of_eq (oSet_out (oMix d L fx k.val) k.val hk)) $$ HOut
      icases HOut with ⟨Y0, Y1, HOut⟩
      ihave Y0 := (Entails.of_eq ((oMix_ge d L fx (t := k.val) (n := 2 * k.val) (by omega)).trans (oP_pos (F := F) d L v0))) $$ Y0
      icases Y0 with ⟨%f0, Y0⟩
      ihave Y0 := (Entails.of_eq (out_congr d L (off_5 L k v0).symm (out_inb L _) (k13_off5_inb L k k13_h2) f0)) $$ Y0
      ihave Y1 := (Entails.of_eq ((oMix_ge d L fx (t := k.val) (n := 2 * k.val + 1) (by omega)).trans (oP_pos (F := F) d L v1))) $$ Y1
      icases Y1 with ⟨%f1, Y1⟩
      ihave Y1 := (Entails.of_eq (out_congr d L (off_10 L k v1).symm (out_inb L _) (k13_off10_inb L k k13_h5) f1)) $$ Y1
      sl_exec
      sl_for (laneV0 d L g4) $$ [F8_dst R6]
      case region =>
        intro (j : Fin k13_t2_loop.trips) _
        unfold laneV0
        iintro ⟨HA, %g, HB, %hl⟩
        sl_exec
        sl_step
        isplitl [HA]; · iexact HA
        iexists _; isplitl [HB]; · iexact HB
        ipureintro; exact lanes_step d L a4 a6 g4 g j _ _ hl
      · unfold laneV0
        isplitl [F8_dst]; · iexact F8_dst
        iexists _; isplitl [R6]; · iexact R6
        ipureintro; exact lanes_zero d L a4 a6 g4 _
      iintro %_ HI
      unfold laneV0
      icases HI with ⟨H4, %g6', H6, %hl6⟩
      have hl6 : Lanes d L a4 a6 g4 g6' 200 := Eq.mp (congrArg (Lanes d L a4 a6 g4 g6') trips2) hl6
      sl_exec
      sl_for (laneV1 d L g5) $$ [F9_dst R7]
      case region =>
        intro (j : Fin k13_t3_loop.trips) _
        unfold laneV1
        iintro ⟨HA, %g, HB, %hl⟩
        sl_exec
        sl_step
        isplitl [HA]; · iexact HA
        iexists _; isplitl [HB]; · iexact HB
        ipureintro; exact lanes_step' d L a5 a7 g5 g j _ _ hl
      · unfold laneV1
        isplitl [F9_dst]; · iexact F9_dst
        iexists _; isplitl [R7]; · iexact R7
        ipureintro; exact lanes_zero d L a5 a7 g5 _
      iintro %_ HI
      unfold laneV1
      icases HI with ⟨H5, %g7', H7, %hl7⟩
      have hl7 : Lanes d L a5 a7 g5 g7' 200 := Eq.mp (congrArg (Lanes d L a5 a7 g5 g7') trips3) hl7
      sl_exec
      sl_step
      isplitr; · iexact Hmw
      isplitl [HO]
      · iexists _; isplitr
        rotate_left
        · iexact HO
        ipureintro; intro p hp
        rcases Finset.mem_insert.mp hp with rfl | hp
        · exact .inr rfl
        rcases Finset.mem_insert.mp hp with rfl | hp
        · exact .inr rfl
        exact hW' p hp
      isplitl [HX F8_src F9_src]
      · iapply (Entails.of_eq (xSet_in (xP d L fx) k.val hk).symm)
        isplitl [F8_src]; · iapply (Entails.of_eq (xP_pos d L fx v0).symm); iexact F8_src
        isplitl [F9_src]; · iapply (Entails.of_eq (xP_pos d L fx v1).symm); iexact F9_src
        iexact HX
      isplitl [HOut]
      · iapply (Entails.of_eq (congrArg (fun s => bigSep s (oMix d L fx (k.val + 1))) (show oCore k.val = oSet (k.val + 1) by rw [hk0]; decide)))
        iapply (Entails.of_eq (oMix_core d L fx k.val)); iexact HOut
      isplitl [F8]
      · iapply (Entails.of_eq (congrArg (inSlotV d L fx a4 cc13_scratch4.sem) (show 2 * k.val + 2 = 2 * (k.val + 1) by ring)))
        iapply (fl_inV d L fx (off_6 L k v2) (k13_off6_inb L k k13_h3) v2 a4 cc13_scratch4.sem); iexists _, _
        isplitr
        rotate_left
        · iexact F8
        ipureintro; intro y; rfl
      isplitl [F10 H6]
      · iapply (Entails.of_eq (congrArg (outSlotV d L fx a6 cc13_scratch6.sem) (show 2 * k.val + 2 = 2 * (k.val + 1) by ring)))
        iapply (fl_outV d L fx (off_5 L k v0) (k13_off5_inb L k k13_h2) v0 a4 a6 cc13_scratch6.sem f0 g4 g6' hl6 hin4); iexists _
        isplitr
        rotate_left
        · isplitl [F10]; · iexact F10
          iexact H6
        ipureintro; intro y; rfl
      isplitl [F9]
      · iapply (Entails.of_eq (congrArg (inSlotV d L fx a5 cc13_scratch5.sem) (show 2 * k.val + 3 = 2 * (k.val + 1) + 1 by ring)))
        iapply (fl_inV d L fx (off_11 L k v3') (k13_off11_inb L k k13_h6) v3' a5 cc13_scratch5.sem); iexists _, _
        isplitr
        rotate_left
        · iexact F9
        ipureintro; intro y; rfl
      · iapply (Entails.of_eq (congrArg (outSlotV d L fx a7 cc13_scratch7.sem) (show 2 * k.val + 1 + 2 = 2 * (k.val + 1) + 1 by ring)))
        iapply (fl_outV d L fx (off_10 L k v1) (k13_off10_inb L k k13_h5) v1 a5 a7 cc13_scratch7.sem f1 g5 g7' hl7 hin5); iexists _
        isplitr
        rotate_left
        · isplitl [F11]; · iexact F11
          iexact H7
        ipureintro; intro y; rfl
  · unfold invV
    isplitr; · iexact Hmw
    isplitl [HO]
    · iexists W; isplitr
      · ipureintro; exact fun p hp => .inl hp
      · iexact HO
    isplitl [HX]; · iexact HX
    isplitl [HOut]; · iapply (Entails.of_eq (oMix_zero d L fx).symm); iexact HOut
    isplitl [S8]; · iexact S8
    isplitl [H6 Hs10]
    · rw [outSlotV_neg d L fx (by omega)]; isplitl [H6]; · iexists _; iexact H6
      iexact Hs10
    isplitl [S9]; · iexact S9
    rw [outSlotV_neg d L fx (by omega)]; isplitl [H7]; · iexists _; iexact H7
    iexact Hs11
  iintro %acc' HI
  ihave HI := (Entails.of_eq (congrArg (fun t => invV d L O W fx t acc') trips1)) $$ HI
  unfold invV
  icases HI with ⟨-, ⟨%W', %hW', HO⟩, HX, HOut, S8, S10, S9, S11⟩
  have nv16 : ¬ valid L (2 * 8) := by unfold valid; omega
  have nv17 : ¬ valid L (2 * 8 + 1) := by unfold valid; omega
  have hm14 : 2 ≤ 2 * 8 ∧ valid L (2 * 8 - 2) := ⟨by omega, Or.inl (by omega)⟩
  ihave S8 := (Entails.of_eq (inSlotV_neg d L fx nv16)) $$ S8
  icases S8 with ⟨⟨%g4', H4⟩, Hs8⟩
  ihave S9 := (Entails.of_eq (inSlotV_neg d L fx nv17)) $$ S9
  icases S9 with ⟨⟨%g5', H5⟩, Hs9⟩
  ihave S10 := (Entails.of_eq (outSlotV_pos d L fx hm14)) $$ S10
  icases S10 with ⟨%g6', F10, R6⟩
  by_cases hb : big L
  · have k13_h8 : k13_cond8 L = 1#1 := (cond8_iff L).mpr hb
    have hm15 : 2 ≤ 2 * 8 + 1 ∧ valid L (2 * 8 + 1 - 2) := ⟨by omega, Or.inr ⟨by omega, hb⟩⟩
    ihave S11 := (Entails.of_eq (outSlotV_pos d L fx hm15)) $$ S11
    icases S11 with ⟨%g7', F11, R7⟩
    sl_exec
    sl_step
    isplitl [HX]; · iapply (xRange_end d L fx); iexact HX
    isplitl [HOut F10_dst F11_dst]
    · iapply (Entails.of_eq (oRange_end (oQ d L fx)).symm)
      isplitl [F10_dst]; · iapply (Entails.of_eq (oQ_pos d L fx hm14.2).symm); iexact F10_dst
      isplitl [F11_dst]; · iapply (Entails.of_eq (oQ_pos d L fx hm15.2).symm); iexact F11_dst
      iapply (Entails.of_eq (oMix_end d L fx)); iexact HOut
    isplitl [H4]; · iexists _; iexact H4
    isplitl [H5]; · iexists _; iexact H5
    isplitl [R6]; · iexists _; iexact R6
    isplitl [R7]; · iexists _; iexact R7
    isplitl [Hs8]; · iexact Hs8
    isplitl [Hs9]; · iexact Hs9
    isplitl [F10]; · iexact F10
    isplitl [F11]; · iexact F11
    isplitl [HO]
    · iexists _; isplitr
      rotate_left
      · iexact HO
      ipureintro; intro p hp
      rcases Finset.mem_insert.mp hp with rfl | hp
      · exact .inr rfl
      rcases Finset.mem_insert.mp hp with rfl | hp
      · exact .inr rfl
      exact hW' p hp
    iexact HR
  · have k13_h8 : ¬ k13_cond8 L = 1#1 := fun h => hb ((cond8_iff L).mp h)
    have hm15 : ¬ (2 ≤ 2 * 8 + 1 ∧ valid L (2 * 8 + 1 - 2)) := by intro h; have := h.2; unfold valid at this; omega
    ihave S11 := (Entails.of_eq (outSlotV_neg d L fx hm15)) $$ S11
    icases S11 with ⟨⟨%g7', R7⟩, F11⟩
    sl_exec
    sl_step
    isplitl [HX]; · iapply (xRange_end d L fx); iexact HX
    isplitl [HOut F10_dst]
    · iapply (Entails.of_eq (oRange_end (oQ d L fx)).symm)
      isplitl [F10_dst]; · iapply (Entails.of_eq (oQ_pos d L fx hm14.2).symm); iexact F10_dst
      isplitr; · iapply (Entails.of_eq (oQ_neg d L fx (n := 15) (by unfold valid; omega)).symm); iempintro
      iapply (Entails.of_eq (oMix_end d L fx)); iexact HOut
    isplitl [H4]; · iexists _; iexact H4
    isplitl [H5]; · iexists _; iexact H5
    isplitl [R6]; · iexists _; iexact R6
    isplitl [R7]; · iexists _; iexact R7
    isplitl [Hs8]; · iexact Hs8
    isplitl [Hs9]; · iexact Hs9
    isplitl [F10]; · iexact F10
    isplitl [F11]; · iexact F11
    isplitl [HO]
    · iexists _; isplitr
      rotate_left
      · iexact HO
      ipureintro; intro p hp
      rcases Finset.mem_insert.mp hp with rfl | hp
      · exact .inr rfl
      exact hW' p hp
    iexact HR

/-! The subcore's scoped storage: the four staging buffers and the four semaphores of this call, and the rest. -/

abbrev c8 : GSem nD τ sig := (thr d L, SemLoc.dma cc13_scratch4.sem)
abbrev c9 : GSem nD τ sig := (thr d L, SemLoc.dma cc13_scratch5.sem)
abbrev c10 : GSem nD τ sig := (thr d L, SemLoc.dma cc13_scratch6.sem)
abbrev c11 : GSem nD τ sig := (thr d L, SemLoc.dma cc13_scratch7.sem)

omit [FloatOps F] in
theorem ownSems0_V :
    (ownSems0 (thr d L) : sProp 𝕄)
      = iprop(semVal (c8 d L) 0 ∗ semVal (c9 d L) 0 ∗ semVal (c10 d L) 0 ∗ semVal (c11 d L) 0
          ∗ bigSep (((((ownCells (thr d L)).erase (c8 d L)).erase (c9 d L)).erase (c10 d L)).erase (c11 d L)) fun g => semVal g 0) := by
  unfold SparseCore.Cfg.ownSems0
  rw [SparseCore.bigSep_erase' ((mem_ownCells (g := c8 d L)).mpr ⟨rfl, by
      show (SemLoc.dma cc13_scratch4.sem : SemLoc sig).isScoped .scVector = true; decide⟩),
    SparseCore.bigSep_erase' (Finset.mem_erase.mpr ⟨fun e => absurd (Prod.mk.inj e).2 (by decide), (mem_ownCells (g := c9 d L)).mpr ⟨rfl, by
      show (SemLoc.dma cc13_scratch5.sem : SemLoc sig).isScoped .scVector = true; decide⟩⟩),
    SparseCore.bigSep_erase' (Finset.mem_erase.mpr ⟨fun e => absurd (Prod.mk.inj e).2 (by decide), Finset.mem_erase.mpr ⟨fun e => absurd (Prod.mk.inj e).2 (by decide),
      (mem_ownCells (g := c10 d L)).mpr ⟨rfl, by show (SemLoc.dma cc13_scratch6.sem : SemLoc sig).isScoped .scVector = true; decide⟩⟩⟩),
    SparseCore.bigSep_erase' (Finset.mem_erase.mpr ⟨fun e => absurd (Prod.mk.inj e).2 (by decide), Finset.mem_erase.mpr ⟨fun e => absurd (Prod.mk.inj e).2 (by decide),
      Finset.mem_erase.mpr ⟨fun e => absurd (Prod.mk.inj e).2 (by decide),
      (mem_ownCells (g := c11 d L)).mpr ⟨rfl, by show (SemLoc.dma cc13_scratch7.sem : SemLoc sig).isScoped .scVector = true; decide⟩⟩⟩⟩)]

abbrev pV (L : grid13.Coords) : Proc τ := Proc.scVector (cV L) (jV L)

omit [FloatOps F] in
theorem ownBufs_V :
    (ownBufs (thr d L) : sProp 𝕄)
      = iprop((∃ f, (thr d L).loc cc13_scratch0 ↦{fullShare} f) ∗ (∃ f, (thr d L).loc cc13_scratch1 ↦{fullShare} f)
          ∗ (∃ f, (thr d L).loc cc13_scratch2 ↦{fullShare} f) ∗ (∃ f, (thr d L).loc cc13_scratch3 ↦{fullShare} f)
          ∗ bigSep (((((ownRefs (τ := τ) (pV L)).erase ((pV L).devRef cc13_scratch0)).erase ((pV L).devRef cc13_scratch1)).erase
              ((pV L).devRef cc13_scratch2)).erase ((pV L).devRef cc13_scratch3))
              fun b => iprop(∃ f, ((d, b) : Loc nD τ sig) ↦{fullShare} f)) := by
  unfold SparseCore.Cfg.ownBufs
  refine (SparseCore.bigSep_erase' (SparseCore.Cfg.mem_ownRefs_of_owner (p := pV L) (b := (pV L).devRef cc13_scratch0) rfl)).trans ?_
  rw [SparseCore.bigSep_erase' (Finset.mem_erase.mpr ⟨fun e => absurd (Proc.devRef_injective _ e) (show (cc13_scratch1 : Ref sig .scVector) ≠ cc13_scratch0 by decide),
      SparseCore.Cfg.mem_ownRefs_of_owner (p := pV L) (b := (pV L).devRef cc13_scratch1) rfl⟩),
    SparseCore.bigSep_erase' (Finset.mem_erase.mpr ⟨fun e => absurd (Proc.devRef_injective _ e) (show (cc13_scratch2 : Ref sig .scVector) ≠ cc13_scratch1 by decide),
      Finset.mem_erase.mpr ⟨fun e => absurd (Proc.devRef_injective _ e) (show (cc13_scratch2 : Ref sig .scVector) ≠ cc13_scratch0 by decide),
      SparseCore.Cfg.mem_ownRefs_of_owner (p := pV L) (b := (pV L).devRef cc13_scratch2) rfl⟩⟩),
    SparseCore.bigSep_erase' (Finset.mem_erase.mpr ⟨fun e => absurd (Proc.devRef_injective _ e) (show (cc13_scratch3 : Ref sig .scVector) ≠ cc13_scratch2 by decide),
      Finset.mem_erase.mpr ⟨fun e => absurd (Proc.devRef_injective _ e) (show (cc13_scratch3 : Ref sig .scVector) ≠ cc13_scratch1 by decide),
      Finset.mem_erase.mpr ⟨fun e => absurd (Proc.devRef_injective _ e) (show (cc13_scratch3 : Ref sig .scVector) ≠ cc13_scratch0 by decide),
      SparseCore.Cfg.mem_ownRefs_of_owner (p := pV L) (b := (pV L).devRef cc13_scratch3) rfl⟩⟩⟩)]

/-- The rest of the subcore's scoped storage, which the task does not touch. -/
def restR : sProp 𝕄 :=
  iprop((bigSep (((((ownRefs (τ := τ) (pV L)).erase ((pV L).devRef cc13_scratch0)).erase ((pV L).devRef cc13_scratch1)).erase
              ((pV L).devRef cc13_scratch2)).erase ((pV L).devRef cc13_scratch3))
              fun b => iprop(∃ f, ((d, b) : Loc nD τ sig) ↦{fullShare} f))
      ∗ bigSep (((((ownCells (thr d L)).erase (c8 d L)).erase (c9 d L)).erase (c10 d L)).erase (c11 d L)) fun g => semVal g 0)

theorem body_pre (hO : ∀ g, O g none = 0) :
    iprop(levAts (K (F := F)).L (K (F := F)).lev ∗ emp ∗ goRes d L fx ∗ ownBufs (thr d L) ∗ ownSems0 (thr d L) ∗ owes (thr d L) O W)
      ⊢ runPre d L O W fx (restR (F := F) d L) := by
  rw [ownSems0_V, ownBufs_V]
  unfold goRes runPre restR
  iintro ⟨#Hlv, -, ⟨HX, HOut⟩, ⟨H4, H5, H6, H7, Hbufs⟩, ⟨Hs8, Hs9, Hs10, Hs11, Hsems⟩, HO⟩
  ihave Hmw := ((K (F := F)).mayWaits_none (thr := thr d L) hO) $$ Hlv
  isplitr; · iexact Hmw
  isplitl [HO]; · iexact HO
  isplitl [HX]; · iexact HX
  isplitl [HOut]; · iexact HOut
  isplitl [H4]; · iexact H4
  isplitl [H5]; · iexact H5
  isplitl [H6]; · iexact H6
  isplitl [H7]; · iexact H7
  isplitl [Hs8]; · iexact Hs8
  isplitl [Hs9]; · iexact Hs9
  isplitl [Hs10]; · iexact Hs10
  isplitl [Hs11]; · iexact Hs11
  isplitl [Hbufs]; · iexact Hbufs
  iexact Hsems

theorem body_post :
    runPost d L O W fx (restR (F := F) d L)
      ⊢ iprop(tdRes d L fx ∗ ownBufs (thr d L) ∗ ownSems0 (thr d L) ∗ ∃ W', ⌜∀ p ∈ W', p ∈ W ∨ p.2 = none⌝ ∗ owes (thr d L) O W') := by
  rw [ownSems0_V, ownBufs_V]
  unfold tdRes runPost restR
  iintro ⟨HX, HOut, H4, H5, H6, H7, Hs8, Hs9, Hs10, Hs11, HW, Hbufs, Hsems⟩
  isplitl [HX HOut]
  · isplitl [HX]; · iexact HX
    iexact HOut
  isplitl [H4 H5 H6 H7 Hbufs]
  · isplitl [H4]; · iexact H4
    isplitl [H5]; · iexact H5
    isplitl [H6]; · iexact H6
    isplitl [H7]; · iexact H7
    iexact Hbufs
  isplitl [Hs8 Hs9 Hs10 Hs11 Hsems]
  · isplitl [Hs8]; · iexact Hs8
    isplitl [Hs9]; · iexact Hs9
    isplitl [Hs10]; · iexact Hs10
    isplitl [Hs11]; · iexact Hs11
    iexact Hsems
  iexact HW

/-- The task in the launch theorem's shape: from what the call hands the tile and the subcore's scoped storage to
    what the tile hands back and the storage again. -/
theorem tile_body (hF : (K (F := F)).Facts) (hO : ∀ g, O g none = 0) :
    iprop(levAts (K (F := F)).L (K (F := F)).lev ∗ emp ∗ goRes d L fx ∗ scopedBufs (thr d L) ∗ scopedSems0 (thr d L) ∗ owes (thr d L) O W)
      ⊢ wp frame (wpE (defs₀ (F := F)) 𝒱₀ (thr d L) none) Set.univ
          (cc13_sc_group L xtW (Memref.isWhole_whole _) oW (Memref.isWhole_whole _) a4 (Memref.isWhole_whole _) a5 (Memref.isWhole_whole _)
            a6 (Memref.isWhole_whole _) a7 (Memref.isWhole_whole _) cc13_scratch4 cc13_scratch5 cc13_scratch6 cc13_scratch7)
          fun _ => iprop(tdRes d L fx ∗ scopedBufs (thr d L) ∗ scopedSems0 (thr d L)
            ∗ ∃ W', ⌜∀ p ∈ W', p ∈ W ∨ p.2 = none⌝ ∗ owes (thr d L) O W') := by
  rw [(K (F := F)).scopedBufs_V hF d (cV L) (jV L), SparseCore.Cfg.scopedSems0_V (Val := Elt F) d (cV L) (jV L)]
  exact (body_pre d L O W fx hO).trans ((tile_run d L O W fx (restR (F := F) d L)).trans (wp_mono frame _ _ fun _ => body_post d L O W fx))

end Tile

end Cert.Proof.TileK13

end
-- ==== Proof.TileBVal13.lean ====
/-
  What the staging buffers of one vector subcore hold while it copies a piece of 3200 consecutive elements of row 13 of
  the transposed argument into the flat result, read index by index. No program and no ownership here: only the contents.

  A transfer lands the piece in row 0 of an 8 × 3200 staging array (`InRow`: position (0, t) of that row holds element
  (0, pos + t) of the transposed argument, `pos` the piece's first column). A loop of 200 trips copies that row, 16 lanes
  per trip, into the first 3200 elements of a flat staging array of 25600: trip `j` reads the 1 × 16 window at columns
  [16 j, 16 j + 16) of row 0 and writes it, flattened, at elements [16 j, 16 j + 16). After `j` trips the first 16 j
  elements of the flat array are the first 16 j elements of the row (`Lanes`); a trip extends the prefix by 16
  (`lanes_step`: an element below 16 j is outside the window written and keeps its value, an element of the window reads
  the lane written there, which is the row's element at the same column). A second transfer writes the first 3200
  elements of the flat array to the piece of the result at the same `pos`; so every element of that piece of the result
  holds the element of row 13 of the transposed argument at its own position (`out_written`): the composite of the three
  index maps t ↦ (0, pos + t) ↦ (0, t) ↦ t ↦ pos + t is the identity on positions of the row.
-/
import proofs.«206869_g37898791420194_cont_8to1_b_558_20_alg».proof.Proof.TileB13Defs
import proofs.«206869_g37898791420194_cont_8to1_b_558_20_alg».proof.Proof.Spec
import Idealize.ShloMosaic.Lib.WritesUnit
import Idealize.ShloMosaic.Lib.ValueLayout

noncomputable section

namespace Cert.Proof.TileBVal13

open Cert.Proof.TileB13 Cert.Kernel Cert.Kernel.Gen
open Idealize.ShloMosaic Idealize.ShloMosaic.ValueIdx

variable {F : FTy → Type} [FloatOps F]
variable (d : Dev nD) (L : grid13.Coords)
variable (fx : Buf (Elt F) ((Memref.whole main_v0_scv : Memref sig .scVector .hbm S22x1600000 .f32).view.loc (thr d L)))

abbrev rowRect : Rect S8x3200 := Rect.unit (s := S8x3200) ![0, 0] S1x3200.size inb_S8x3200_S1x3200_0_0

/-- row 0 of the staging array is piece n of the argument row -/
def InRow (a : Memref sig .scVector .vmem S8x3200 .f32) (ga : Buf (Elt F) (a.view.loc (thr d L))) (n : ℕ) : Prop :=
  ∀ y : S1x3200.Idx, a.view.read (Elt F) ga (rowRect.emb y) = (inM L n).view.read (Elt F) fx y

theorem inRow_fetch (a : Memref sig .scVector .vmem S8x3200 .f32) (gold : Buf (Elt F) (a.view.loc (thr d L)))
    (w : S1x3200.Idx → Elt F .f32) (n : ℕ) (hw : ∀ y, w y = (inM L n).view.read (Elt F) fx y) :
    InRow d L fx a (a.view.writes (Elt F) gold [⟨rowRect, w⟩]) n :=
  fun y => (View.read_writes_cons_emb a.view gold rowRect w [] y).trans (hw y)

def Lanes (a : Memref sig .scVector .vmem S8x3200 .f32) (b : Memref sig .scVector .vmem S25600 .f32)
    (ga : Buf (Elt F) (a.view.loc (thr d L))) (gb : Buf (Elt F) (b.view.loc (thr d L))) (j : ℕ) : Prop :=
  ∀ (r : ℕ) (hr : r < 3200), r < 16 * j →
    b.view.read (Elt F) gb (ix1 (⟨r, by omega⟩ : Fin 25600)) = a.view.read (Elt F) ga (ix2 (0 : Fin 8) (⟨r, hr⟩ : Fin 3200))

theorem lanes_zero (a : Memref sig .scVector .vmem S8x3200 .f32) (b : Memref sig .scVector .vmem S25600 .f32)
    (ga : Buf (Elt F) (a.view.loc (thr d L))) (gb : Buf (Elt F) (b.view.loc (thr d L))) : Lanes d L a b ga gb 0 := by
  intro r hr h; omega

/-- The 1 × 16 window at column `c` of the staging array, read at lane `t`, is element `(0, c + t)`. -/
theorem idx_window {off : Fin 2 → ℕ} {c : ℕ} (h : off = ![0, c]) (p : ∀ a', off a' + S1x16.size a' ≤ S8x3200.size a')
    (t : Fin 16) (hr : c + t.val < 3200) :
    (Rect.unit (s := S8x3200) off S1x16.size p).toLoadRect.idx (ix2 (0 : Fin 1) t) = ix2 (0 : Fin 8) (⟨c + t.val, hr⟩ : Fin 3200) := by
  subst h
  funext a'; apply Fin.ext
  rw [LoadRect.idx_apply]
  match a' with
  | ⟨0, _⟩ => show 0 + 1 * 0 = 0; omega
  | ⟨1, _⟩ => show c + 1 * t.val = c + t.val; omega

/-- One trip of a lane-copy loop, the offsets given by their closed forms. -/
theorem lanes_step_core (a : Memref sig .scVector .vmem S8x3200 .f32) (b : Memref sig .scVector .vmem S25600 .f32)
    (ga : Buf (Elt F) (a.view.loc (thr d L))) (gb : Buf (Elt F) (b.view.loc (thr d L)))
    (t : ℕ) {off3 : Fin 2 → ℕ} {off4 : Fin 1 → ℕ} (h3 : off3 = ![0, 16 * t]) (h4 : off4 = ![16 * t])
    (p3 : ∀ a', off3 a' + S1x16.size a' ≤ S8x3200.size a') (p4 : ∀ a', off4 a' + S16.size a' ≤ S25600.size a')
    (h : Lanes d L a b ga gb t) :
    Lanes d L a b ga (b.view.writes (Elt F) gb [⟨Rect.unit (s := S25600) off4 S16.size p4,
      shapeCast S16 (a.view.readAt (Elt F) (Rect.unit (s := S8x3200) off3 S1x16.size p3).toLoadRect ga) shapeCasts_S1x16_S16⟩]) (t + 1) := by
  intro r hr hlt
  by_cases hlo : r < 16 * t
  · refine (View.read_writes_cons_unit_of_not_mem b.view gb p4 _ [] _ h4 (0 : Fin 1) (Or.inl ?_)).trans (h r hr hlo)
    show r < 16 * t
    exact hlo
  · have hx : r - 16 * t < 16 := by omega
    refine (View.read_writes_cons_unit_of_mem b.view gb p4 _ [] _ (ix1 (⟨r - 16 * t, hx⟩ : Fin 16)) h4 ?_).trans ?_
    · intro a'
      match a' with
      | ⟨0, _⟩ => show r = 16 * t + (r - 16 * t); omega
    · rw [shapeCast_1a_a_apply, View.readAt_apply, idx_window h3 p3 ⟨r - 16 * t, hx⟩ (by show 16 * t + (r - 16 * t) < 3200; omega)]
      congr 2
      apply Fin.ext
      show 16 * t + (r - 16 * t) = r
      omega

theorem lanes_step (a : Memref sig .scVector .vmem S8x3200 .f32) (b : Memref sig .scVector .vmem S25600 .f32)
    (ga : Buf (Elt F) (a.view.loc (thr d L))) (gb : Buf (Elt F) (b.view.loc (thr d L)))
    (j : Fin k13_t2_loop.trips) (p3 : ∀ a', (k13_off3 j) a' + S1x16.size a' ≤ S8x3200.size a')
    (p4 : ∀ a', (k13_off4 j) a' + S16.size a' ≤ S25600.size a') (h : Lanes d L a b ga gb j.val) :
    Lanes d L a b ga (b.view.writes (Elt F) gb [⟨Rect.unit (s := S25600) (k13_off4 j) S16.size p4,
      k13_pay1 (a.view.readAt (Elt F) (Rect.unit (s := S8x3200) (k13_off3 j) S1x16.size p3).toLoadRect ga)⟩]) (j.val + 1) :=
  lanes_step_core d L a b ga gb j.val (k13_off3_eq j) (k13_off4_eq j) p3 p4 h

theorem lanes_step' (a : Memref sig .scVector .vmem S8x3200 .f32) (b : Memref sig .scVector .vmem S25600 .f32)
    (ga : Buf (Elt F) (a.view.loc (thr d L))) (gb : Buf (Elt F) (b.view.loc (thr d L)))
    (j : Fin k13_t3_loop.trips) (p3 : ∀ a', (k13_off8 j) a' + S1x16.size a' ≤ S8x3200.size a')
    (p4 : ∀ a', (k13_off9 j) a' + S16.size a' ≤ S25600.size a') (h : Lanes d L a b ga gb j.val) :
    Lanes d L a b ga (b.view.writes (Elt F) gb [⟨Rect.unit (s := S25600) (k13_off9 j) S16.size p4,
      k13_pay2 (a.view.readAt (Elt F) (Rect.unit (s := S8x3200) (k13_off8 j) S1x16.size p3).toLoadRect ga)⟩]) (j.val + 1) :=
  lanes_step_core d L a b ga gb j.val (k13_off8_eq j) (k13_off9_eq j) p3 p4 h

/-- Position `y` of the write-out window of the flat staging array is its element `y 0`. -/
theorem stg_emb (y : S3200.Idx) (hy : (y 0).val < 25600) :
    (Rect.unit (s := S25600) ![0] S3200.size inb_S25600_S3200_0).emb y = ix1 (⟨(y 0).val, hy⟩ : Fin 25600) := by
  funext a'; apply Fin.ext
  match a' with
  | ⟨0, _⟩ => show 0 + 1 * (y 0).val = (y 0).val; omega

/-- Position `(0, t)` of row 0 of the staging array is its element `(0, t)`. -/
theorem row_emb (t : Fin 3200) : rowRect.emb (ix2 (0 : Fin 1) t) = ix2 (0 : Fin 8) t := by
  funext a'; apply Fin.ext
  match a' with
  | ⟨0, _⟩ => show 0 + 1 * 0 = 0; omega
  | ⟨1, _⟩ => show 0 + 1 * t.val = t.val; omega

/-- Position `(0, t)` of piece `n` of the argument row is element `(0, pos + t)` of the transposed argument;
    position `y` of piece `n` of the result is element `pos + y 0` of the result. -/
theorem in_emb (n : ℕ) (t : Fin 3200) (h : pos L n + t.val < 1600000) :
    (inM L n).view.emb (ix2 (0 : Fin 1) t) = ix2 (13 : Fin 22) (⟨pos L n + t.val, h⟩ : Fin 1600000) := by
  funext a'; apply Fin.ext
  match a' with
  | ⟨0, _⟩ => show 13 + 1 * 0 = 13; omega
  | ⟨1, _⟩ => show pos L n + 1 * t.val = pos L n + t.val; omega

theorem out_emb (n : ℕ) (y : S3200.Idx) (h : pos L n + (y 0).val < 1600000) :
    (outM L n).view.emb y = ix1 (⟨pos L n + (y 0).val, h⟩ : Fin 1600000) := by
  funext a'; apply Fin.ext
  match a' with
  | ⟨0, _⟩ => show pos L n + 1 * (y 0).val = pos L n + (y 0).val; omega

/-- Both lane-copy loops run 200 trips: 200 · 16 = 3200, the whole row. -/
theorem trips2 : k13_t2_loop.trips = 200 := by decide
theorem trips3 : k13_t3_loop.trips = 200 := by decide

/-- After all its trips a lane-copy loop has copied the whole row. -/
theorem lanes_all (a : Memref sig .scVector .vmem S8x3200 .f32) (b : Memref sig .scVector .vmem S25600 .f32)
    (ga : Buf (Elt F) (a.view.loc (thr d L))) (gb : Buf (Elt F) (b.view.loc (thr d L)))
    (h : Lanes d L a b ga gb k13_t2_loop.trips) : Lanes d L a b ga gb 200 := trips2 ▸ h
theorem lanes_all' (a : Memref sig .scVector .vmem S8x3200 .f32) (b : Memref sig .scVector .vmem S25600 .f32)
    (ga : Buf (Elt F) (a.view.loc (thr d L))) (gb : Buf (Elt F) (b.view.loc (thr d L)))
    (h : Lanes d L a b ga gb k13_t3_loop.trips) : Lanes d L a b ga gb 200 := trips3 ▸ h

/-- The write-out of a piece: the first 3200 elements of the flat staging array, which the 200 lane copies filled from
    row 0 of the staging array, which the fetch filled from piece `n` of row 13 of the transposed argument, land at
    piece `n` of the result, at the same positions of the row. -/
theorem out_written (a : Memref sig .scVector .vmem S8x3200 .f32) (b : Memref sig .scVector .vmem S25600 .f32) (n : ℕ)
    (ga : Buf (Elt F) (a.view.loc (thr d L))) (gb : Buf (Elt F) (b.view.loc (thr d L)))
    (f0 : Buf (Elt F) ((outM L n).view.loc (thr d L))) (w : S3200.Idx → Elt F .f32)
    (hw : ∀ y, w y = (stg b).view.read (Elt F) gb y) (hl : Lanes d L a b ga gb 200) (hr : InRow d L fx a ga n) (hv : valid L n) :
    ∀ i ∈ (outM L n).view.set, ((outM L n).view.writes (Elt F) f0 [⟨Rect.whole _, w⟩]) i = Cert.Spec.row 13 fx i := by
  intro i hi
  obtain ⟨y, -, rfl⟩ := Finset.mem_map.mp hi
  have hy : (y 0).val < 3200 := (y 0).isLt
  have hp : pos L n + (y 0).val < 1600000 := by unfold pos; omega
  have e1 : (outM L n).view.writes (Elt F) f0 [⟨Rect.whole _, w⟩] ((outM L n).view.emb y) = w y := by
    have h := View.read_writes_cons_emb (outM L n).view f0 (Rect.whole _) w [] y
    rw [Rect.emb_whole_apply] at h
    exact (cast_eq _ _).symm.trans ((View.read_apply _ _).symm.trans h)
  have e2 : (stg b).view.read (Elt F) gb y = b.view.read (Elt F) gb (ix1 (⟨(y 0).val, by omega⟩ : Fin 25600)) :=
    congrArg (b.view.read (Elt F) gb) (stg_emb y (by omega))
  have e3 : a.view.read (Elt F) ga (ix2 (0 : Fin 8) (⟨(y 0).val, hy⟩ : Fin 3200))
      = (inM L n).view.read (Elt F) fx (ix2 (0 : Fin 1) (⟨(y 0).val, hy⟩ : Fin 3200)) :=
    (congrArg (a.view.read (Elt F) ga) (row_emb ⟨(y 0).val, hy⟩).symm).trans (hr _)
  have e4 : (inM L n).view.read (Elt F) fx (ix2 (0 : Fin 1) (⟨(y 0).val, hy⟩ : Fin 3200))
      = fx (ix2 (13 : Fin 22) (⟨pos L n + (y 0).val, hp⟩ : Fin 1600000)) :=
    ((View.read_apply _ _).trans (cast_eq _ _)).trans (congrArg fx (in_emb L n ⟨(y 0).val, hy⟩ hp))
  have e5 : Cert.Spec.row 13 fx ((outM L n).view.emb y) = fx (ix2 (13 : Fin 22) (⟨pos L n + (y 0).val, hp⟩ : Fin 1600000)) :=
    (congrArg (Cert.Spec.row 13 fx) (out_emb L n y hp)).trans (Cert.Spec.row_apply 13 fx _)
  exact e1.trans ((hw y).trans (e2.trans ((hl _ hy (by omega)).trans (e3.trans (e4.trans e5.symm)))))

end Cert.Proof.TileBVal13

end
-- ==== Proof.TileB13.lean ====
/-
  One vector subcore's task of copy kernel 13 (counting from 0), run symbolically: the two fetch slots and two write-out slots
  between trips of the main loop (what each transfer in flight will hand back, and what the staging buffers hold), the
  invariant of the main loop and of the two lane-copy loops, and the task's run — from the tile's pieces of row 13 of
  the transposed argument and of the result to the same pieces with the result holding the row's elements.
-/
import proofs.«206869_g37898791420194_cont_8to1_b_558_20_alg».proof.Proof.TileB13Defs
import proofs.«206869_g37898791420194_cont_8to1_b_558_20_alg».proof.Proof.TileBVal13
noncomputable section

namespace Cert.Proof.TileB13

open Cert.Kernel Cert.Kernel.Gen Cert.Proof.TileBVal13
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 22) (Elt F) ℕ UU ℕ
local notation "xtW" => (Memref.whole Cert.Kernel.main_v0_scv : Memref Cert.Kernel.sig Kind.scVector Space.hbm Cert.Kernel.S22x1600000 EltTy.f32)
local notation "oW" => (Memref.whole Cert.Kernel.main_v14_scv : Memref Cert.Kernel.sig Kind.scVector Space.hbm Cert.Kernel.S1600000 EltTy.f32)
local notation "a4" => (Memref.whole Cert.Kernel.cc13_scratch0 : Memref Cert.Kernel.sig Kind.scVector Space.vmem Cert.Kernel.S8x3200 EltTy.f32)
local notation "a5" => (Memref.whole Cert.Kernel.cc13_scratch1 : Memref Cert.Kernel.sig Kind.scVector Space.vmem Cert.Kernel.S8x3200 EltTy.f32)
local notation "a6" => (Memref.whole Cert.Kernel.cc13_scratch2 : Memref Cert.Kernel.sig Kind.scVector Space.vmem Cert.Kernel.S25600 EltTy.f32)
local notation "a7" => (Memref.whole Cert.Kernel.cc13_scratch3 : Memref Cert.Kernel.sig Kind.scVector Space.vmem Cert.Kernel.S25600 EltTy.f32)

variable [FloatOps F]

section Tile

variable (d : Dev nD) (L : grid13.Coords)
variable (O : CellTallies nD τ sig (HIx 22)) (W : Waits sig (HIx 22))
variable (fx : Buf (Elt F) ((xtW).view.loc (thr d L)))

/-- Piece `n` of the result at its final contents. -/
abbrev oqPiece (n : ℕ) : sProp 𝕄 := (outM L n).view.loc (thr d L) ↦[(outM L n).view.set]{fullShare} (Cert.Spec.row 13 fx)
theorem oQ_pos {n : ℕ} (v : valid L n) : oQ d L fx n = oqPiece d L fx n := if_pos v
theorem oQ_neg {n : ℕ} (v : ¬ valid L n) : oQ d L fx n = iprop(emp) := if_neg v

/-- A fetch slot, remembering that the staging row it will hand back holds the piece. -/
def inSlotV (a : Memref sig .scVector .vmem S8x3200 .f32) (sm : DmaSem sig) (n : ℕ) : sProp 𝕄 :=
  if valid L n then
    iprop(∃ g, ⌜InRow d L fx a g n⌝ ∗ Transfers.Flight countersEmb (thr d L) (SemLoc.dma sm) (default : HIx 22) NN
      iprop((a.view.loc (thr d L) ↦{fullShare} g) ∗ xtPiece d L fx n))
  else iprop((∃ g, a.view.loc (thr d L) ↦{fullShare} g) ∗ semVal (thr d L, SemLoc.dma sm) 0)

/-- A write-out slot: the piece in flight will come back holding the row's elements. -/
def outSlotV (a : Memref sig .scVector .vmem S25600 .f32) (sm : DmaSem sig) (m : ℕ) : sProp 𝕄 :=
  if 2 ≤ m ∧ valid L (m - 2) then
    iprop(∃ g, Transfers.Flight countersEmb (thr d L) (SemLoc.dma sm) (default : HIx 22) NN
        iprop(oqPiece d L fx (m - 2) ∗ ((stg a).view.loc (thr d L) ↦[(stg a).view.set]{fullShare} g))
      ∗ (a.view.loc (thr d L) ↦[Finset.univ \ (stg a).view.set]{fullShare} g))
  else iprop((∃ g, a.view.loc (thr d L) ↦{fullShare} g) ∗ semVal (thr d L, SemLoc.dma sm) 0)

theorem inSlotV_pos {a : Memref sig .scVector .vmem S8x3200 .f32} {sm : DmaSem sig} {n : ℕ} (v : valid L n) :
    inSlotV d L fx a sm n = iprop(∃ g, ⌜InRow d L fx a g n⌝ ∗ Transfers.Flight countersEmb (thr d L) (SemLoc.dma sm) (default : HIx 22) NN
      iprop((a.view.loc (thr d L) ↦{fullShare} g) ∗ xtPiece d L fx n)) := by unfold inSlotV; rw [if_pos v]
theorem inSlotV_neg {a : Memref sig .scVector .vmem S8x3200 .f32} {sm : DmaSem sig} {n : ℕ} (v : ¬ valid L n) :
    inSlotV d L fx a sm n = iprop((∃ g, a.view.loc (thr d L) ↦{fullShare} g) ∗ semVal (thr d L, SemLoc.dma sm) 0) := by
  unfold inSlotV; rw [if_neg v]
theorem outSlotV_pos {a : Memref sig .scVector .vmem S25600 .f32} {sm : DmaSem sig} {m : ℕ} (h : 2 ≤ m ∧ valid L (m - 2)) :
    outSlotV d L fx a sm m = iprop(∃ g, Transfers.Flight countersEmb (thr d L) (SemLoc.dma sm) (default : HIx 22) NN
        iprop(oqPiece d L fx (m - 2) ∗ ((stg a).view.loc (thr d L) ↦[(stg a).view.set]{fullShare} g))
      ∗ (a.view.loc (thr d L) ↦[Finset.univ \ (stg a).view.set]{fullShare} g)) := by unfold outSlotV; rw [if_pos h]
theorem outSlotV_neg {a : Memref sig .scVector .vmem S25600 .f32} {sm : DmaSem sig} {m : ℕ} (h : ¬ (2 ≤ m ∧ valid L (m - 2))) :
    outSlotV d L fx a sm m = iprop((∃ g, a.view.loc (thr d L) ↦{fullShare} g) ∗ semVal (thr d L, SemLoc.dma sm) 0) := by
  unfold outSlotV; rw [if_neg h]

/-- A fetch just issued: the staging row will hold what the transfer reads, which is the piece. -/
theorem fl_inV {off : Fin 2 → ℕ} {n : ℕ} (h : off = ![13, pos L n]) (p : ∀ a, off a + S1x3200.size a ≤ S22x1600000.size a) (v : valid L n)
    (a : Memref sig .scVector .vmem S8x3200 .f32) (sm : DmaSem sig) :
    (iprop(∃ (gold : Buf (Elt F) (a.view.loc (thr d L))) (w : S1x3200.Idx → Elt F .f32),
        ⌜∀ y, w y = ((xtW).slice (Rect.unit (s := S22x1600000) off S1x3200.size p) (fun _ => rfl)).view.read (Elt F) fx y⌝
        ∗ Transfers.Flight countersEmb (thr d L) (SemLoc.dma sm) (default : HIx 22) NN
          iprop((a.view.loc (thr d L) ↦{fullShare} a.view.writes (Elt F) gold [⟨rowRect, w⟩])
            ∗ (((xtW).slice (Rect.unit (s := S22x1600000) off S1x3200.size p) (fun _ => rfl)).view.loc (thr d L)
                ↦[((xtW).slice (Rect.unit (s := S22x1600000) off S1x3200.size p) (fun _ => rfl)).view.set]{fullShare} fx))) : sProp 𝕄)
      ⊢ inSlotV d L fx a sm n := by
  subst h
  rw [inSlotV_pos d L fx v]
  iintro ⟨%gold, %w, %hw, H⟩
  iexists _
  isplitr
  · ipureintro; exact inRow_fetch d L fx a gold w n hw
  · iexact H

set_option maxHeartbeats 4000000 in
/-- A write-out just issued from a flat staging buffer whose first 3200 elements are the staging row, itself piece
    `n` of the argument row: the piece of the result will hold the row's elements. -/
theorem fl_outV {off : Fin 1 → ℕ} {n : ℕ} (h : off = ![pos L n]) (p : ∀ a, off a + S3200.size a ≤ S1600000.size a) (v : valid L n)
    (ar : Memref sig .scVector .vmem S8x3200 .f32) (a : Memref sig .scVector .vmem S25600 .f32) (sm : DmaSem sig)
    (f0 : Buf (Elt F) ((oW).view.loc (thr d L))) (ga : Buf (Elt F) (ar.view.loc (thr d L))) (gb : Buf (Elt F) (a.view.loc (thr d L)))
    (hl : Lanes d L ar a ga gb 200) (hr : InRow d L fx ar ga n) :
    (iprop(∃ (w : S3200.Idx → Elt F .f32),
        ⌜∀ y, w y = (stg a).view.read (Elt F) gb y⌝
        ∗ Transfers.Flight countersEmb (thr d L) (SemLoc.dma sm) (default : HIx 22) NN
          iprop((((oW).slice (Rect.unit (s := S1600000) off S3200.size p) (fun _ => rfl)).view.loc (thr d L)
                ↦[((oW).slice (Rect.unit (s := S1600000) off S3200.size p) (fun _ => rfl)).view.set]{fullShare}
                  (((oW).slice (Rect.unit (s := S1600000) off S3200.size p) (fun _ => rfl)).view.writes (Elt F) f0 [⟨Rect.whole _, w⟩]))
            ∗ ((stg a).view.loc (thr d L) ↦[(stg a).view.set]{fullShare} gb))
        ∗ (a.view.loc (thr d L) ↦[Finset.univ \ (stg a).view.set]{fullShare} gb)) : sProp 𝕄)
      ⊢ outSlotV d L fx a sm (n + 2) := by
  subst h
  rw [outSlotV_pos d L fx (m := n + 2) ⟨by omega, by simpa using v⟩]
  iintro ⟨%w, %hw, H, R⟩
  have hD : (iprop(((outM L n).view.loc (thr d L) ↦[(outM L n).view.set]{fullShare} ((outM L n).view.writes (Elt F) f0 [⟨Rect.whole _, w⟩]))
          ∗ ((stg a).view.loc (thr d L) ↦[(stg a).view.set]{fullShare} gb)) : sProp 𝕄)
      ⊢ iprop(oqPiece d L fx (n + 2 - 2) ∗ ((stg a).view.loc (thr d L) ↦[(stg a).view.set]{fullShare} gb)) := by
    rw [Nat.add_sub_cancel]
    have e : (((outM L n).view.loc (thr d L) ↦[(outM L n).view.set]{fullShare} ((outM L n).view.writes (Elt F) f0 [⟨Rect.whole _, w⟩])) : sProp 𝕄)
        = oqPiece d L fx n := pointsTo_congr (out_written d L fx ar a n ga gb f0 w hw hl hr v)
    iintro ⟨H1, H2⟩
    isplitl [H1]
    · iapply (Entails.of_eq e); iexact H1
    · iexact H2
  iexists gb
  isplitl [H]
  · iapply (Transfers.Flight_mono countersEmb (thr d L) hD); iexact H
  · iexact R

/-- The result pieces outside the slots before trip `t`: those already written hold the row, the others some contents. -/
def oMix (t n : ℕ) : sProp 𝕄 := if n + 2 < 2 * t then oQ d L fx n else oP (F := F) d L n
theorem oMix_lt {t n : ℕ} (h : n + 2 < 2 * t) : oMix d L fx t n = oQ d L fx n := if_pos h
theorem oMix_ge {t n : ℕ} (h : ¬ n + 2 < 2 * t) : oMix d L fx t n = oP (F := F) d L n := if_neg h
theorem oMix_core (k : ℕ) : bigSep (oCore k) (oMix d L fx k) = bigSep (oCore k) (oMix d L fx (k + 1)) :=
  bigSep_congr fun n hn => by
    have hn' : n + 2 ≠ 2 * k ∧ n + 2 ≠ 2 * k + 1 ∧ n ≠ 2 * k ∧ n ≠ 2 * k + 1 := by
      simp only [oCore, Finset.mem_filter, Finset.mem_range] at hn; exact hn.2
    by_cases h : n + 2 < 2 * k
    · rw [oMix_lt d L fx h, oMix_lt d L fx (by omega)]
    · rw [oMix_ge d L fx h, oMix_ge d L fx (by omega)]
theorem oMix_zero : bigSep (oSet 0) (oMix d L fx 0) = bigSep (Finset.range 18) (oP (F := F) d L) := by
  rw [oSet_zero]; exact bigSep_congr fun n _ => oMix_ge d L fx (by omega)
theorem oMix_end : bigSep (oSet 8) (oMix d L fx 8) = bigSep (oSet 8) (oQ d L fx) :=
  bigSep_congr fun n hn => by
    have hn' : n < 18 ∧ n + 2 ≠ 16 ∧ n + 2 ≠ 17 := by simpa only [oSet, Finset.mem_filter, Finset.mem_range] using hn
    by_cases h : n + 2 < 2 * 8
    · exact oMix_lt d L fx h
    · rw [oMix_ge d L fx h, oP_neg (F := F) d L (by unfold valid; omega), oQ_neg d L fx (by unfold valid; omega)]

/-- The lane-copy loops: before trip `j` the first 16·j elements of the flat staging buffer are the staging row's. -/
def laneV0 (g4 : Buf (Elt F) ((a4).view.loc (thr d L))) (j : ℕ) (_ : PUnit) : sProp 𝕄 :=
  iprop(((a4).view.loc (thr d L) ↦{fullShare} g4) ∗ (∃ g, ((a6).view.loc (thr d L) ↦{fullShare} g) ∗ ⌜Lanes d L a4 a6 g4 g j⌝))
def laneV1 (g5 : Buf (Elt F) ((a5).view.loc (thr d L))) (j : ℕ) (_ : PUnit) : sProp 𝕄 :=
  iprop(((a5).view.loc (thr d L) ↦{fullShare} g5) ∗ (∃ g, ((a7).view.loc (thr d L) ↦{fullShare} g) ∗ ⌜Lanes d L a5 a7 g5 g j⌝))

def invV (t : ℕ) (_ : PUnit) : sProp 𝕄 :=
  iprop(Transfers.MayWaits (thr d L) (none : HIx 22) O
    ∗ (∃ W', ⌜∀ p ∈ W', p ∈ W ∨ p.2 = none⌝ ∗ owes (thr d L) O W')
    ∗ bigSep (xSet t) (xP d L fx) ∗ bigSep (oSet t) (oMix d L fx t)
    ∗ inSlotV d L fx a4 cc13_scratch4.sem (2 * t) ∗ outSlotV d L fx a6 cc13_scratch6.sem (2 * t)
    ∗ inSlotV d L fx a5 cc13_scratch5.sem (2 * t + 1) ∗ outSlotV d L fx a7 cc13_scratch7.sem (2 * t + 1))

/-- After the last trip nothing of the argument row is in a slot: the tile holds all its pieces. -/
theorem xRange_end : bigSep (xSet 8) (xP d L fx) ⊢ bigSep (Finset.range 18) (xP d L fx) := by
  rw [two_out (s := Finset.range 18) (a := 16) (b := 17) (by decide) (by decide) (by decide),
    show ((Finset.range 18).erase 16).erase 17 = xSet 8 by decide]
  iintro H
  isplitr; · iapply (Entails.of_eq (xP_neg d L fx (n := 16) (by unfold valid; omega)).symm); iempintro
  isplitr; · iapply (Entails.of_eq (xP_neg d L fx (n := 17) (by unfold valid; omega)).symm); iempintro
  iexact H
omit [FloatOps F] in
theorem oRange_end (Φ : ℕ → sProp 𝕄) : bigSep (Finset.range 18) Φ = iprop(Φ 14 ∗ Φ 15 ∗ bigSep (oSet 8) Φ) := by
  rw [two_out (s := Finset.range 18) (a := 14) (b := 15) (by decide) (by decide) (by decide),
    show ((Finset.range 18).erase 14).erase 15 = oSet 8 by decide]

/-- What the run starts from and ends with, beside an untouched rest `R`. -/
def runPre (R : sProp 𝕄) : sProp 𝕄 :=
    iprop(Transfers.MayWaits (thr d L) (none : HIx 22) O ∗ owes (thr d L) O W
        ∗ bigSep (Finset.range 18) (xP d L fx) ∗ bigSep (Finset.range 18) (oP (F := F) d L)
        ∗ (∃ g, (a4).view.loc (thr d L) ↦{fullShare} g) ∗ (∃ g, (a5).view.loc (thr d L) ↦{fullShare} g)
        ∗ (∃ g, (a6).view.loc (thr d L) ↦{fullShare} g) ∗ (∃ g, (a7).view.loc (thr d L) ↦{fullShare} g)
        ∗ semVal (thr d L, SemLoc.dma cc13_scratch4.sem) 0 ∗ semVal (thr d L, SemLoc.dma cc13_scratch5.sem) 0
        ∗ semVal (thr d L, SemLoc.dma cc13_scratch6.sem) 0 ∗ semVal (thr d L, SemLoc.dma cc13_scratch7.sem) 0 ∗ R)
def runPost (R : sProp 𝕄) : sProp 𝕄 :=
    iprop(bigSep (Finset.range 18) (xP d L fx) ∗ bigSep (Finset.range 18) (oQ d L fx)
            ∗ (∃ g, (a4).view.loc (thr d L) ↦{fullShare} g) ∗ (∃ g, (a5).view.loc (thr d L) ↦{fullShare} g)
            ∗ (∃ g, (a6).view.loc (thr d L) ↦{fullShare} g) ∗ (∃ g, (a7).view.loc (thr d L) ↦{fullShare} g)
            ∗ semVal (thr d L, SemLoc.dma cc13_scratch4.sem) 0 ∗ semVal (thr d L, SemLoc.dma cc13_scratch5.sem) 0
            ∗ semVal (thr d L, SemLoc.dma cc13_scratch6.sem) 0 ∗ semVal (thr d L, SemLoc.dma cc13_scratch7.sem) 0
            ∗ (∃ W', ⌜∀ p ∈ W', p ∈ W ∨ p.2 = none⌝ ∗ owes (thr d L) O W') ∗ R)

set_option maxHeartbeats 16000000 in
/-- The task's run: from its pieces of the argument row and of the result, the four staging buffers and the four
    semaphores at zero, to the same with every piece of the result holding the row's elements. -/
theorem tile_run (R : sProp 𝕄) :
    runPre d L O W fx R
      ⊢ wp frame (wpE (defs₀ (F := F)) 𝒱₀ (thr d L) none) Set.univ
          (cc13_sc_group L xtW (Memref.isWhole_whole _) oW (Memref.isWhole_whole _) a4 (Memref.isWhole_whole _) a5 (Memref.isWhole_whole _)
            a6 (Memref.isWhole_whole _) a7 (Memref.isWhole_whole _) cc13_scratch4 cc13_scratch5 cc13_scratch6 cc13_scratch7)
          fun _ => runPost d L O W fx R := by
  unfold runPre runPost
  have v0 : valid L 0 := Or.inl (by omega)
  have v1 : valid L 1 := Or.inl (by omega)
  have k13_h7 : k13_cond7 L = 1#1 := cond7_iff L
  iintro ⟨#Hmw, HO, HX, HOut, ⟨%g4, H4⟩, ⟨%g5, H5⟩, ⟨%g6, H6⟩, ⟨%g7, H7⟩, Hs8, Hs9, Hs10, Hs11, HR⟩
  ihave HX := (Entails.of_eq (xRange_split d L fx v0 v1)) $$ HX
  icases HX with ⟨X0, X1, HX⟩
  ihave X0 := (Entails.of_eq (in_congr d L (off_in0 L v0).symm (in_inb L _) (k13_off1_inb L 0) fx)) $$ X0
  ihave X1 := (Entails.of_eq (in_congr d L (off_in1 L v1).symm (in_inb L _) (k13_off1_inb L 1) fx)) $$ X1
  sl_unfold [cc13_sc_group]
  sl_exec
  ihave S8 := (fl_inV d L fx (off_in0 L v0) (k13_off1_inb L 0) v0 a4 cc13_scratch4.sem) $$ [Hs8]
  · iexists _, _
    isplitr
    rotate_left
    · iexact Hs8
    ipureintro; intro y; rfl
  ihave S9 := (fl_inV d L fx (off_in1 L v1) (k13_off1_inb L 1) v1 a5 cc13_scratch5.sem) $$ [Hs9]
  · iexists _, _
    isplitr
    rotate_left
    · iexact Hs9
    ipureintro; intro y; rfl
  sl_for (invV d L O W fx) $$ [HO HX HOut S8 S9 H6 H7 Hs10 Hs11]
  case region =>
    intro (k : Fin k13_t1_loop.trips) acc
    have hk : k.val < 8 := Nat.lt_of_lt_of_eq k.isLt trips1
    unfold invV
    iintro ⟨#Hmw, ⟨%W', %hW', HO⟩, HX, HOut, S8, S10, S9, S11⟩
    by_cases hk1 : 1 ≤ k.val
    · by_cases v3 : valid L (2 * k.val + 3)
      · -- the generic trip: both drains, both pieces worked, both next fetches issued
        have hk6 : k.val ≤ 6 := by unfold valid at v3; omega
        have k13_h1 : k13_cond1 k = 1#1 := (cond1_iff k).mpr (by omega)
        have k13_h2 : k13_cond2 L k = 1#1 := cond2_iff L k
        have k13_h3 : k13_cond3 L k = 1#1 := (cond3_iff L k).mpr (by omega)
        have k13_h4 : k13_cond4 k = 1#1 := (cond4_iff k).mpr (by omega)
        have k13_h5 : k13_cond5 L k = 1#1 := (cond5_iff L k).mpr (by first | (unfold valid big at *; omega) | (unfold big at *; omega) | omega)
        have k13_h6 : k13_cond6 L k = 1#1 := (cond6_iff L k).mpr (by first | (unfold valid big at *; omega) | (unfold big at *; omega) | omega)
        have v0 : valid L (2 * k.val) := by unfold valid big at *; omega
        have v1 : valid L (2 * k.val + 1) := by unfold valid big at *; omega
        have v2 : valid L (2 * k.val + 2) := by unfold valid big at *; omega
        have v3' : valid L (2 * k.val + 3) := by unfold valid big at *; omega
        have hm0 : 2 ≤ 2 * k.val ∧ valid L (2 * k.val - 2) := ⟨by omega, by unfold valid big at *; omega⟩
        have hm1 : 2 ≤ 2 * k.val + 1 ∧ valid L (2 * k.val + 1 - 2) := ⟨by omega, by unfold valid big at *; omega⟩
        ihave S8 := (Entails.of_eq (inSlotV_pos d L fx v0)) $$ S8
        icases S8 with ⟨%g4, %hin4, F8⟩
        ihave S9 := (Entails.of_eq (inSlotV_pos d L fx v1)) $$ S9
        icases S9 with ⟨%g5, %hin5, F9⟩
        ihave S10 := (Entails.of_eq (outSlotV_pos d L fx hm0)) $$ S10
        icases S10 with ⟨%g6, F10, R6⟩
        ihave S11 := (Entails.of_eq (outSlotV_pos d L fx hm1)) $$ S11
        icases S11 with ⟨%g7, F11, R7⟩
        ihave HX := (Entails.of_eq (xSet_out (xP d L fx) k.val hk)) $$ HX
        icases HX with ⟨X2, X3, HX⟩
        ihave X2 := (Entails.of_eq (xP_pos d L fx v2)) $$ X2
        ihave X2 := (Entails.of_eq (in_congr d L (off_6 L k v2).symm (in_inb L _) (k13_off6_inb L k k13_h3) fx)) $$ X2
        ihave X3 := (Entails.of_eq (xP_pos d L fx v3')) $$ X3
        ihave X3 := (Entails.of_eq (in_congr d L (off_11 L k v3').symm (in_inb L _) (k13_off11_inb L k k13_h6) fx)) $$ X3
        ihave HOut := (Entails.of_eq (oSet_out (oMix d L fx k.val) k.val hk)) $$ HOut
        icases HOut with ⟨Y0, Y1, HOut⟩
        ihave Y0 := (Entails.of_eq ((oMix_ge d L fx (t := k.val) (n := 2 * k.val) (by omega)).trans (oP_pos (F := F) d L v0))) $$ Y0
        icases Y0 with ⟨%f0, Y0⟩
        ihave Y0 := (Entails.of_eq (out_congr d L (off_5 L k v0).symm (out_inb L _) (k13_off5_inb L k k13_h2) f0)) $$ Y0
        ihave Y1 := (Entails.of_eq ((oMix_ge d L fx (t := k.val) (n := 2 * k.val + 1) (by omega)).trans (oP_pos (F := F) d L v1))) $$ Y1
        icases Y1 with ⟨%f1, Y1⟩
        ihave Y1 := (Entails.of_eq (out_congr d L (off_10 L k v1).symm (out_inb L _) (k13_off10_inb L k k13_h5) f1)) $$ Y1
        sl_exec
        sl_for (laneV0 d L g4) $$ [F8_dst R6]
        case region =>
          intro (j : Fin k13_t2_loop.trips) _
          unfold laneV0
          iintro ⟨HA, %g, HB, %hl⟩
          sl_exec
          sl_step
          isplitl [HA]; · iexact HA
          iexists _; isplitl [HB]; · iexact HB
          ipureintro; exact lanes_step d L a4 a6 g4 g j _ _ hl
        · unfold laneV0
          isplitl [F8_dst]; · iexact F8_dst
          iexists _; isplitl [R6]; · iexact R6
          ipureintro; exact lanes_zero d L a4 a6 g4 _
        iintro %_ HI
        unfold laneV0
        icases HI with ⟨H4, %g6', H6, %hl6⟩
        have hl6 : Lanes d L a4 a6 g4 g6' 200 := Eq.mp (congrArg (Lanes d L a4 a6 g4 g6') trips2) hl6
        sl_exec
        sl_for (laneV1 d L g5) $$ [F9_dst R7]
        case region =>
          intro (j : Fin k13_t3_loop.trips) _
          unfold laneV1
          iintro ⟨HA, %g, HB, %hl⟩
          sl_exec
          sl_step
          isplitl [HA]; · iexact HA
          iexists _; isplitl [HB]; · iexact HB
          ipureintro; exact lanes_step' d L a5 a7 g5 g j _ _ hl
        · unfold laneV1
          isplitl [F9_dst]; · iexact F9_dst
          iexists _; isplitl [R7]; · iexact R7
          ipureintro; exact lanes_zero d L a5 a7 g5 _
        iintro %_ HI
        unfold laneV1
        icases HI with ⟨H5, %g7', H7, %hl7⟩
        have hl7 : Lanes d L a5 a7 g5 g7' 200 := Eq.mp (congrArg (Lanes d L a5 a7 g5 g7') trips3) hl7
        sl_exec
        sl_step
        isplitr; · iexact Hmw
        isplitl [HO]
        · iexists _; isplitr
          rotate_left
          · iexact HO
          ipureintro; intro p hp
          rcases Finset.mem_insert.mp hp with rfl | hp
          · exact .inr rfl
          rcases Finset.mem_insert.mp hp with rfl | hp
          · exact .inr rfl
          rcases Finset.mem_insert.mp hp with rfl | hp
          · exact .inr rfl
          rcases Finset.mem_insert.mp hp with rfl | hp
          · exact .inr rfl
          exact hW' p hp
        isplitl [HX F8_src F9_src]
        · iapply (Entails.of_eq (xSet_in (xP d L fx) k.val hk).symm)
          isplitl [F8_src]; · iapply (Entails.of_eq (xP_pos d L fx v0).symm); iexact F8_src
          isplitl [F9_src]; · iapply (Entails.of_eq (xP_pos d L fx v1).symm); iexact F9_src
          iexact HX
        isplitl [HOut F10_dst F11_dst]
        · iapply (Entails.of_eq (oSet_in (oMix d L fx (k.val + 1)) k.val hk (by omega)).symm)
          isplitl [F10_dst]; · iapply (Entails.of_eq ((oMix_lt d L fx (t := k.val + 1) (n := 2 * k.val - 2) (by omega)).trans (oQ_pos d L fx hm0.2)).symm); iexact F10_dst
          isplitl [F11_dst]
          · iapply (Entails.of_eq ((oMix_lt d L fx (t := k.val + 1) (n := 2 * k.val - 1) (by omega)).trans (oQ_pos d L fx (n := 2 * k.val - 1) (by have := hm1.2; rwa [show 2 * k.val + 1 - 2 = 2 * k.val - 1 by omega] at this))).symm)
            iapply (Entails.of_eq (congrArg (oqPiece d L fx) (show 2 * k.val + 1 - 2 = 2 * k.val - 1 by omega))); iexact F11_dst
          iapply (Entails.of_eq (oMix_core d L fx k.val)); iexact HOut
        isplitl [F8]
        · iapply (Entails.of_eq (congrArg (inSlotV d L fx a4 cc13_scratch4.sem) (show 2 * k.val + 2 = 2 * (k.val + 1) by ring)))
          iapply (fl_inV d L fx (off_6 L k v2) (k13_off6_inb L k k13_h3) v2 a4 cc13_scratch4.sem); iexists _, _
          isplitr
          rotate_left
          · iexact F8
          ipureintro; intro y; rfl
        isplitl [F10 H6]
        · iapply (Entails.of_eq (congrArg (outSlotV d L fx a6 cc13_scratch6.sem) (show 2 * k.val + 2 = 2 * (k.val + 1) by ring)))
          iapply (fl_outV d L fx (off_5 L k v0) (k13_off5_inb L k k13_h2) v0 a4 a6 cc13_scratch6.sem f0 g4 g6' hl6 hin4); iexists _
          isplitr
          rotate_left
          · isplitl [F10]; · iexact F10
            iexact H6
          ipureintro; intro y; rfl
        isplitl [F9]
        · iapply (Entails.of_eq (congrArg (inSlotV d L fx a5 cc13_scratch5.sem) (show 2 * k.val + 3 = 2 * (k.val + 1) + 1 by ring)))
          iapply (fl_inV d L fx (off_11 L k v3') (k13_off11_inb L k k13_h6) v3' a5 cc13_scratch5.sem); iexists _, _
          isplitr
          rotate_left
          · iexact F9
          ipureintro; intro y; rfl
        · iapply (Entails.of_eq (congrArg (outSlotV d L fx a7 cc13_scratch7.sem) (show 2 * k.val + 1 + 2 = 2 * (k.val + 1) + 1 by ring)))
          iapply (fl_outV d L fx (off_10 L k v1) (k13_off10_inb L k k13_h5) v1 a5 a7 cc13_scratch7.sem f1 g5 g7' hl7 hin5); iexists _
          isplitr
          rotate_left
          · isplitl [F11]; · iexact F11
            iexact H7
          ipureintro; intro y; rfl
      · by_cases h6 : k.val = 6
        · have hb : ¬ big L := fun hb => v3 (Or.inr ⟨by omega, hb⟩)
          -- trip 6 of a tile with fifteen pieces: no sixteenth piece to fetch
          have k13_h1 : k13_cond1 k = 1#1 := (cond1_iff k).mpr (by omega)
          have k13_h2 : k13_cond2 L k = 1#1 := cond2_iff L k
          have k13_h3 : k13_cond3 L k = 1#1 := (cond3_iff L k).mpr (by omega)
          have k13_h4 : k13_cond4 k = 1#1 := (cond4_iff k).mpr (by omega)
          have k13_h5 : k13_cond5 L k = 1#1 := (cond5_iff L k).mpr (by first | (unfold valid big at *; omega) | (unfold big at *; omega) | omega)
          have k13_h6 : ¬ k13_cond6 L k = 1#1 := fun h => absurd ((cond6_iff L k).mp h) (by first | (unfold valid big at *; omega) | (unfold big at *; omega) | omega)
          have v0 : valid L (2 * k.val) := by unfold valid big at *; omega
          have v1 : valid L (2 * k.val + 1) := by unfold valid big at *; omega
          have v2 : valid L (2 * k.val + 2) := by unfold valid big at *; omega
          have v3' : ¬ valid L (2 * k.val + 3) := by unfold valid big at *; omega
          have hm0 : 2 ≤ 2 * k.val ∧ valid L (2 * k.val - 2) := ⟨by omega, by unfold valid big at *; omega⟩
          have hm1 : 2 ≤ 2 * k.val + 1 ∧ valid L (2 * k.val + 1 - 2) := ⟨by omega, by unfold valid big at *; omega⟩
          ihave S8 := (Entails.of_eq (inSlotV_pos d L fx v0)) $$ S8
          icases S8 with ⟨%g4, %hin4, F8⟩
          ihave S9 := (Entails.of_eq (inSlotV_pos d L fx v1)) $$ S9
          icases S9 with ⟨%g5, %hin5, F9⟩
          ihave S10 := (Entails.of_eq (outSlotV_pos d L fx hm0)) $$ S10
          icases S10 with ⟨%g6, F10, R6⟩
          ihave S11 := (Entails.of_eq (outSlotV_pos d L fx hm1)) $$ S11
          icases S11 with ⟨%g7, F11, R7⟩
          ihave HX := (Entails.of_eq (xSet_out (xP d L fx) k.val hk)) $$ HX
          icases HX with ⟨X2, -, HX⟩
          ihave X2 := (Entails.of_eq (xP_pos d L fx v2)) $$ X2
          ihave X2 := (Entails.of_eq (in_congr d L (off_6 L k v2).symm (in_inb L _) (k13_off6_inb L k k13_h3) fx)) $$ X2
          ihave HOut := (Entails.of_eq (oSet_out (oMix d L fx k.val) k.val hk)) $$ HOut
          icases HOut with ⟨Y0, Y1, HOut⟩
          ihave Y0 := (Entails.of_eq ((oMix_ge d L fx (t := k.val) (n := 2 * k.val) (by omega)).trans (oP_pos (F := F) d L v0))) $$ Y0
          icases Y0 with ⟨%f0, Y0⟩
          ihave Y0 := (Entails.of_eq (out_congr d L (off_5 L k v0).symm (out_inb L _) (k13_off5_inb L k k13_h2) f0)) $$ Y0
          ihave Y1 := (Entails.of_eq ((oMix_ge d L fx (t := k.val) (n := 2 * k.val + 1) (by omega)).trans (oP_pos (F := F) d L v1))) $$ Y1
          icases Y1 with ⟨%f1, Y1⟩
          ihave Y1 := (Entails.of_eq (out_congr d L (off_10 L k v1).symm (out_inb L _) (k13_off10_inb L k k13_h5) f1)) $$ Y1
          sl_exec
          sl_for (laneV0 d L g4) $$ [F8_dst R6]
          case region =>
            intro (j : Fin k13_t2_loop.trips) _
            unfold laneV0
            iintro ⟨HA, %g, HB, %hl⟩
            sl_exec
            sl_step
            isplitl [HA]; · iexact HA
            iexists _; isplitl [HB]; · iexact HB
            ipureintro; exact lanes_step d L a4 a6 g4 g j _ _ hl
          · unfold laneV0
            isplitl [F8_dst]; · iexact F8_dst
            iexists _; isplitl [R6]; · iexact R6
            ipureintro; exact lanes_zero d L a4 a6 g4 _
          iintro %_ HI
          unfold laneV0
          icases HI with ⟨H4, %g6', H6, %hl6⟩
          have hl6 : Lanes d L a4 a6 g4 g6' 200 := Eq.mp (congrArg (Lanes d L a4 a6 g4 g6') trips2) hl6
          sl_exec
          sl_for (laneV1 d L g5) $$ [F9_dst R7]
          case region =>
            intro (j : Fin k13_t3_loop.trips) _
            unfold laneV1
            iintro ⟨HA, %g, HB, %hl⟩
            sl_exec
            sl_step
            isplitl [HA]; · iexact HA
            iexists _; isplitl [HB]; · iexact HB
            ipureintro; exact lanes_step' d L a5 a7 g5 g j _ _ hl
          · unfold laneV1
            isplitl [F9_dst]; · iexact F9_dst
            iexists _; isplitl [R7]; · iexact R7
            ipureintro; exact lanes_zero d L a5 a7 g5 _
          iintro %_ HI
          unfold laneV1
          icases HI with ⟨H5, %g7', H7, %hl7⟩
          have hl7 : Lanes d L a5 a7 g5 g7' 200 := Eq.mp (congrArg (Lanes d L a5 a7 g5 g7') trips3) hl7
          sl_exec
          sl_step
          isplitr; · iexact Hmw
          isplitl [HO]
          · iexists _; isplitr
            rotate_left
            · iexact HO
            ipureintro; intro p hp
            rcases Finset.mem_insert.mp hp with rfl | hp
            · exact .inr rfl
            rcases Finset.mem_insert.mp hp with rfl | hp
            · exact .inr rfl
            rcases Finset.mem_insert.mp hp with rfl | hp
            · exact .inr rfl
            rcases Finset.mem_insert.mp hp with rfl | hp
            · exact .inr rfl
            exact hW' p hp
          isplitl [HX F8_src F9_src]
          · iapply (Entails.of_eq (xSet_in (xP d L fx) k.val hk).symm)
            isplitl [F8_src]; · iapply (Entails.of_eq (xP_pos d L fx v0).symm); iexact F8_src
            isplitl [F9_src]; · iapply (Entails.of_eq (xP_pos d L fx v1).symm); iexact F9_src
            iexact HX
          isplitl [HOut F10_dst F11_dst]
          · iapply (Entails.of_eq (oSet_in (oMix d L fx (k.val + 1)) k.val hk (by omega)).symm)
            isplitl [F10_dst]; · iapply (Entails.of_eq ((oMix_lt d L fx (t := k.val + 1) (n := 2 * k.val - 2) (by omega)).trans (oQ_pos d L fx hm0.2)).symm); iexact F10_dst
            isplitl [F11_dst]
            · iapply (Entails.of_eq ((oMix_lt d L fx (t := k.val + 1) (n := 2 * k.val - 1) (by omega)).trans (oQ_pos d L fx (n := 2 * k.val - 1) (by have := hm1.2; rwa [show 2 * k.val + 1 - 2 = 2 * k.val - 1 by omega] at this))).symm)
              iapply (Entails.of_eq (congrArg (oqPiece d L fx) (show 2 * k.val + 1 - 2 = 2 * k.val - 1 by omega))); iexact F11_dst
            iapply (Entails.of_eq (oMix_core d L fx k.val)); iexact HOut
          isplitl [F8]
          · iapply (Entails.of_eq (congrArg (inSlotV d L fx a4 cc13_scratch4.sem) (show 2 * k.val + 2 = 2 * (k.val + 1) by ring)))
            iapply (fl_inV d L fx (off_6 L k v2) (k13_off6_inb L k k13_h3) v2 a4 cc13_scratch4.sem); iexists _, _
            isplitr
            rotate_left
            · iexact F8
            ipureintro; intro y; rfl
          isplitl [F10 H6]
          · iapply (Entails.of_eq (congrArg (outSlotV d L fx a6 cc13_scratch6.sem) (show 2 * k.val + 2 = 2 * (k.val + 1) by ring)))
            iapply (fl_outV d L fx (off_5 L k v0) (k13_off5_inb L k k13_h2) v0 a4 a6 cc13_scratch6.sem f0 g4 g6' hl6 hin4); iexists _
            isplitr
            rotate_left
            · isplitl [F10]; · iexact F10
              iexact H6
            ipureintro; intro y; rfl
          isplitl [H5 F9]
          · iapply (Entails.of_eq (congrArg (inSlotV d L fx a5 cc13_scratch5.sem) (show 2 * k.val + 3 = 2 * (k.val + 1) + 1 by ring)))
            iapply (Entails.of_eq (inSlotV_neg d L fx v3').symm)
            isplitl [H5]; · iexists _; iexact H5
            iexact F9
          · iapply (Entails.of_eq (congrArg (outSlotV d L fx a7 cc13_scratch7.sem) (show 2 * k.val + 1 + 2 = 2 * (k.val + 1) + 1 by ring)))
            iapply (fl_outV d L fx (off_10 L k v1) (k13_off10_inb L k k13_h5) v1 a5 a7 cc13_scratch7.sem f1 g5 g7' hl7 hin5); iexists _
            isplitr
            rotate_left
            · isplitl [F11]; · iexact F11
              iexact H7
            ipureintro; intro y; rfl
        · have h7 : k.val = 7 := by unfold valid at v3; omega
          by_cases hb : big L
          · -- the last trip of a tile with sixteen pieces: nothing more to fetch
            have k13_h1 : k13_cond1 k = 1#1 := (cond1_iff k).mpr (by omega)
            have k13_h2 : k13_cond2 L k = 1#1 := cond2_iff L k
            have k13_h3 : ¬ k13_cond3 L k = 1#1 := fun h => absurd ((cond3_iff L k).mp h) (by omega)
            have k13_h4 : k13_cond4 k = 1#1 := (cond4_iff k).mpr (by omega)
            have k13_h5 : k13_cond5 L k = 1#1 := (cond5_iff L k).mpr (by first | (unfold valid big at *; omega) | (unfold big at *; omega) | omega)
            have k13_h6 : ¬ k13_cond6 L k = 1#1 := fun h => absurd ((cond6_iff L k).mp h) (by first | (unfold valid big at *; omega) | (unfold big at *; omega) | omega)
            have v0 : valid L (2 * k.val) := by unfold valid big at *; omega
            have v1 : valid L (2 * k.val + 1) := by unfold valid big at *; omega
            have v2 : ¬ valid L (2 * k.val + 2) := by unfold valid big at *; omega
            have v3' : ¬ valid L (2 * k.val + 3) := by unfold valid big at *; omega
            have hm0 : 2 ≤ 2 * k.val ∧ valid L (2 * k.val - 2) := ⟨by omega, by unfold valid big at *; omega⟩
            have hm1 : 2 ≤ 2 * k.val + 1 ∧ valid L (2 * k.val + 1 - 2) := ⟨by omega, by unfold valid big at *; omega⟩
            ihave S8 := (Entails.of_eq (inSlotV_pos d L fx v0)) $$ S8
            icases S8 with ⟨%g4, %hin4, F8⟩
            ihave S9 := (Entails.of_eq (inSlotV_pos d L fx v1)) $$ S9
            icases S9 with ⟨%g5, %hin5, F9⟩
            ihave S10 := (Entails.of_eq (outSlotV_pos d L fx hm0)) $$ S10
            icases S10 with ⟨%g6, F10, R6⟩
            ihave S11 := (Entails.of_eq (outSlotV_pos d L fx hm1)) $$ S11
            icases S11 with ⟨%g7, F11, R7⟩
            ihave HX := (Entails.of_eq (xSet_out (xP d L fx) k.val hk)) $$ HX
            icases HX with ⟨-, -, HX⟩
            ihave HOut := (Entails.of_eq (oSet_out (oMix d L fx k.val) k.val hk)) $$ HOut
            icases HOut with ⟨Y0, Y1, HOut⟩
            ihave Y0 := (Entails.of_eq ((oMix_ge d L fx (t := k.val) (n := 2 * k.val) (by omega)).trans (oP_pos (F := F) d L v0))) $$ Y0
            icases Y0 with ⟨%f0, Y0⟩
            ihave Y0 := (Entails.of_eq (out_congr d L (off_5 L k v0).symm (out_inb L _) (k13_off5_inb L k k13_h2) f0)) $$ Y0
            ihave Y1 := (Entails.of_eq ((oMix_ge d L fx (t := k.val) (n := 2 * k.val + 1) (by omega)).trans (oP_pos (F := F) d L v1))) $$ Y1
            icases Y1 with ⟨%f1, Y1⟩
            ihave Y1 := (Entails.of_eq (out_congr d L (off_10 L k v1).symm (out_inb L _) (k13_off10_inb L k k13_h5) f1)) $$ Y1
            sl_exec
            sl_for (laneV0 d L g4) $$ [F8_dst R6]
            case region =>
              intro (j : Fin k13_t2_loop.trips) _
              unfold laneV0
              iintro ⟨HA, %g, HB, %hl⟩
              sl_exec
              sl_step
              isplitl [HA]; · iexact HA
              iexists _; isplitl [HB]; · iexact HB
              ipureintro; exact lanes_step d L a4 a6 g4 g j _ _ hl
            · unfold laneV0
              isplitl [F8_dst]; · iexact F8_dst
              iexists _; isplitl [R6]; · iexact R6
              ipureintro; exact lanes_zero d L a4 a6 g4 _
            iintro %_ HI
            unfold laneV0
            icases HI with ⟨H4, %g6', H6, %hl6⟩
            have hl6 : Lanes d L a4 a6 g4 g6' 200 := Eq.mp (congrArg (Lanes d L a4 a6 g4 g6') trips2) hl6
            sl_exec
            sl_for (laneV1 d L g5) $$ [F9_dst R7]
            case region =>
              intro (j : Fin k13_t3_loop.trips) _
              unfold laneV1
              iintro ⟨HA, %g, HB, %hl⟩
              sl_exec
              sl_step
              isplitl [HA]; · iexact HA
              iexists _; isplitl [HB]; · iexact HB
              ipureintro; exact lanes_step' d L a5 a7 g5 g j _ _ hl
            · unfold laneV1
              isplitl [F9_dst]; · iexact F9_dst
              iexists _; isplitl [R7]; · iexact R7
              ipureintro; exact lanes_zero d L a5 a7 g5 _
            iintro %_ HI
            unfold laneV1
            icases HI with ⟨H5, %g7', H7, %hl7⟩
            have hl7 : Lanes d L a5 a7 g5 g7' 200 := Eq.mp (congrArg (Lanes d L a5 a7 g5 g7') trips3) hl7
            sl_exec
            sl_step
            isplitr; · iexact Hmw
            isplitl [HO]
            · iexists _; isplitr
              rotate_left
              · iexact HO
              ipureintro; intro p hp
              rcases Finset.mem_insert.mp hp with rfl | hp
              · exact .inr rfl
              rcases Finset.mem_insert.mp hp with rfl | hp
              · exact .inr rfl
              rcases Finset.mem_insert.mp hp with rfl | hp
              · exact .inr rfl
              rcases Finset.mem_insert.mp hp with rfl | hp
              · exact .inr rfl
              exact hW' p hp
            isplitl [HX F8_src F9_src]
            · iapply (Entails.of_eq (xSet_in (xP d L fx) k.val hk).symm)
              isplitl [F8_src]; · iapply (Entails.of_eq (xP_pos d L fx v0).symm); iexact F8_src
              isplitl [F9_src]; · iapply (Entails.of_eq (xP_pos d L fx v1).symm); iexact F9_src
              iexact HX
            isplitl [HOut F10_dst F11_dst]
            · iapply (Entails.of_eq (oSet_in (oMix d L fx (k.val + 1)) k.val hk (by omega)).symm)
              isplitl [F10_dst]; · iapply (Entails.of_eq ((oMix_lt d L fx (t := k.val + 1) (n := 2 * k.val - 2) (by omega)).trans (oQ_pos d L fx hm0.2)).symm); iexact F10_dst
              isplitl [F11_dst]
              · iapply (Entails.of_eq ((oMix_lt d L fx (t := k.val + 1) (n := 2 * k.val - 1) (by omega)).trans (oQ_pos d L fx (n := 2 * k.val - 1) (by have := hm1.2; rwa [show 2 * k.val + 1 - 2 = 2 * k.val - 1 by omega] at this))).symm)
                iapply (Entails.of_eq (congrArg (oqPiece d L fx) (show 2 * k.val + 1 - 2 = 2 * k.val - 1 by omega))); iexact F11_dst
              iapply (Entails.of_eq (oMix_core d L fx k.val)); iexact HOut
            isplitl [H4 F8]
            · iapply (Entails.of_eq (congrArg (inSlotV d L fx a4 cc13_scratch4.sem) (show 2 * k.val + 2 = 2 * (k.val + 1) by ring)))
              iapply (Entails.of_eq (inSlotV_neg d L fx v2).symm)
              isplitl [H4]; · iexists _; iexact H4
              iexact F8
            isplitl [F10 H6]
            · iapply (Entails.of_eq (congrArg (outSlotV d L fx a6 cc13_scratch6.sem) (show 2 * k.val + 2 = 2 * (k.val + 1) by ring)))
              iapply (fl_outV d L fx (off_5 L k v0) (k13_off5_inb L k k13_h2) v0 a4 a6 cc13_scratch6.sem f0 g4 g6' hl6 hin4); iexists _
              isplitr
              rotate_left
              · isplitl [F10]; · iexact F10
                iexact H6
              ipureintro; intro y; rfl
            isplitl [H5 F9]
            · iapply (Entails.of_eq (congrArg (inSlotV d L fx a5 cc13_scratch5.sem) (show 2 * k.val + 3 = 2 * (k.val + 1) + 1 by ring)))
              iapply (Entails.of_eq (inSlotV_neg d L fx v3').symm)
              isplitl [H5]; · iexists _; iexact H5
              iexact F9
            · iapply (Entails.of_eq (congrArg (outSlotV d L fx a7 cc13_scratch7.sem) (show 2 * k.val + 1 + 2 = 2 * (k.val + 1) + 1 by ring)))
              iapply (fl_outV d L fx (off_10 L k v1) (k13_off10_inb L k k13_h5) v1 a5 a7 cc13_scratch7.sem f1 g5 g7' hl7 hin5); iexists _
              isplitr
              rotate_left
              · isplitl [F11]; · iexact F11
                iexact H7
              ipureintro; intro y; rfl
          · -- the last trip of a tile with fifteen pieces: the second slot only drains
            have k13_h1 : k13_cond1 k = 1#1 := (cond1_iff k).mpr (by omega)
            have k13_h2 : k13_cond2 L k = 1#1 := cond2_iff L k
            have k13_h3 : ¬ k13_cond3 L k = 1#1 := fun h => absurd ((cond3_iff L k).mp h) (by omega)
            have k13_h4 : k13_cond4 k = 1#1 := (cond4_iff k).mpr (by omega)
            have k13_h5 : ¬ k13_cond5 L k = 1#1 := fun h => absurd ((cond5_iff L k).mp h) (by first | (unfold valid big at *; omega) | (unfold big at *; omega) | omega)
            have k13_h6 : ¬ k13_cond6 L k = 1#1 := fun h => absurd ((cond6_iff L k).mp h) (by first | (unfold valid big at *; omega) | (unfold big at *; omega) | omega)
            have v0 : valid L (2 * k.val) := by unfold valid big at *; omega
            have v1 : ¬ valid L (2 * k.val + 1) := by unfold valid big at *; omega
            have v2 : ¬ valid L (2 * k.val + 2) := by unfold valid big at *; omega
            have v3' : ¬ valid L (2 * k.val + 3) := by unfold valid big at *; omega
            have hm0 : 2 ≤ 2 * k.val ∧ valid L (2 * k.val - 2) := ⟨by omega, by unfold valid big at *; omega⟩
            have hm1 : 2 ≤ 2 * k.val + 1 ∧ valid L (2 * k.val + 1 - 2) := ⟨by omega, by unfold valid big at *; omega⟩
            ihave S8 := (Entails.of_eq (inSlotV_pos d L fx v0)) $$ S8
            icases S8 with ⟨%g4, %hin4, F8⟩
            ihave S9 := (Entails.of_eq (inSlotV_neg d L fx v1)) $$ S9
            icases S9 with ⟨⟨%g5, H5⟩, F9⟩
            ihave S10 := (Entails.of_eq (outSlotV_pos d L fx hm0)) $$ S10
            icases S10 with ⟨%g6, F10, R6⟩
            ihave S11 := (Entails.of_eq (outSlotV_pos d L fx hm1)) $$ S11
            icases S11 with ⟨%g7, F11, R7⟩
            ihave HX := (Entails.of_eq (xSet_out (xP d L fx) k.val hk)) $$ HX
            icases HX with ⟨-, -, HX⟩
            ihave HOut := (Entails.of_eq (oSet_out (oMix d L fx k.val) k.val hk)) $$ HOut
            icases HOut with ⟨Y0, -, HOut⟩
            ihave Y0 := (Entails.of_eq ((oMix_ge d L fx (t := k.val) (n := 2 * k.val) (by omega)).trans (oP_pos (F := F) d L v0))) $$ Y0
            icases Y0 with ⟨%f0, Y0⟩
            ihave Y0 := (Entails.of_eq (out_congr d L (off_5 L k v0).symm (out_inb L _) (k13_off5_inb L k k13_h2) f0)) $$ Y0
            sl_exec
            sl_for (laneV0 d L g4) $$ [F8_dst R6]
            case region =>
              intro (j : Fin k13_t2_loop.trips) _
              unfold laneV0
              iintro ⟨HA, %g, HB, %hl⟩
              sl_exec
              sl_step
              isplitl [HA]; · iexact HA
              iexists _; isplitl [HB]; · iexact HB
              ipureintro; exact lanes_step d L a4 a6 g4 g j _ _ hl
            · unfold laneV0
              isplitl [F8_dst]; · iexact F8_dst
              iexists _; isplitl [R6]; · iexact R6
              ipureintro; exact lanes_zero d L a4 a6 g4 _
            iintro %_ HI
            unfold laneV0
            icases HI with ⟨H4, %g6', H6, %hl6⟩
            have hl6 : Lanes d L a4 a6 g4 g6' 200 := Eq.mp (congrArg (Lanes d L a4 a6 g4 g6') trips2) hl6
            sl_exec
            sl_step
            isplitr; · iexact Hmw
            isplitl [HO]
            · iexists _; isplitr
              rotate_left
              · iexact HO
              ipureintro; intro p hp
              rcases Finset.mem_insert.mp hp with rfl | hp
              · exact .inr rfl
              rcases Finset.mem_insert.mp hp with rfl | hp
              · exact .inr rfl
              rcases Finset.mem_insert.mp hp with rfl | hp
              · exact .inr rfl
              exact hW' p hp
            isplitl [HX F8_src]
            · iapply (Entails.of_eq (xSet_in (xP d L fx) k.val hk).symm)
              isplitl [F8_src]; · iapply (Entails.of_eq (xP_pos d L fx v0).symm); iexact F8_src
              isplitr; · iapply (Entails.of_eq (xP_neg d L fx v1).symm); iempintro
              iexact HX
            isplitl [HOut F10_dst F11_dst]
            · iapply (Entails.of_eq (oSet_in (oMix d L fx (k.val + 1)) k.val hk (by omega)).symm)
              isplitl [F10_dst]; · iapply (Entails.of_eq ((oMix_lt d L fx (t := k.val + 1) (n := 2 * k.val - 2) (by omega)).trans (oQ_pos d L fx hm0.2)).symm); iexact F10_dst
              isplitl [F11_dst]
              · iapply (Entails.of_eq ((oMix_lt d L fx (t := k.val + 1) (n := 2 * k.val - 1) (by omega)).trans (oQ_pos d L fx (n := 2 * k.val - 1) (by have := hm1.2; rwa [show 2 * k.val + 1 - 2 = 2 * k.val - 1 by omega] at this))).symm)
                iapply (Entails.of_eq (congrArg (oqPiece d L fx) (show 2 * k.val + 1 - 2 = 2 * k.val - 1 by omega))); iexact F11_dst
              iapply (Entails.of_eq (oMix_core d L fx k.val)); iexact HOut
            isplitl [H4 F8]
            · iapply (Entails.of_eq (congrArg (inSlotV d L fx a4 cc13_scratch4.sem) (show 2 * k.val + 2 = 2 * (k.val + 1) by ring)))
              iapply (Entails.of_eq (inSlotV_neg d L fx v2).symm)
              isplitl [H4]; · iexists _; iexact H4
              iexact F8
            isplitl [F10 H6]
            · iapply (Entails.of_eq (congrArg (outSlotV d L fx a6 cc13_scratch6.sem) (show 2 * k.val + 2 = 2 * (k.val + 1) by ring)))
              iapply (fl_outV d L fx (off_5 L k v0) (k13_off5_inb L k k13_h2) v0 a4 a6 cc13_scratch6.sem f0 g4 g6' hl6 hin4); iexists _
              isplitr
              rotate_left
              · isplitl [F10]; · iexact F10
                iexact H6
              ipureintro; intro y; rfl
            isplitl [H5 F9]
            · iapply (Entails.of_eq (congrArg (inSlotV d L fx a5 cc13_scratch5.sem) (show 2 * k.val + 3 = 2 * (k.val + 1) + 1 by ring)))
              iapply (Entails.of_eq (inSlotV_neg d L fx v3').symm)
              isplitl [H5]; · iexists _; iexact H5
              iexact F9
            · iapply (Entails.of_eq (outSlotV_neg d L fx (m := 2 * (k.val + 1) + 1) (by intro h; apply v1; have := h.2; rwa [show 2 * (k.val + 1) + 1 - 2 = 2 * k.val + 1 by omega] at this)).symm)
              isplitl [R7]; · iexists _; iexact R7
              iexact F11
    · have hk0 : k.val = 0 := by omega
      -- the first trip: nothing to drain
      have k13_h1 : ¬ k13_cond1 k = 1#1 := fun h => absurd ((cond1_iff k).mp h) (by omega)
      have k13_h2 : k13_cond2 L k = 1#1 := cond2_iff L k
      have k13_h3 : k13_cond3 L k = 1#1 := (cond3_iff L k).mpr (by omega)
      have k13_h4 : ¬ k13_cond4 k = 1#1 := fun h => absurd ((cond4_iff k).mp h) (by omega)
      have k13_h5 : k13_cond5 L k = 1#1 := (cond5_iff L k).mpr (by first | (unfold valid big at *; omega) | (unfold big at *; omega) | omega)
      have k13_h6 : k13_cond6 L k = 1#1 := (cond6_iff L k).mpr (by first | (unfold valid big at *; omega) | (unfold big at *; omega) | omega)
      have v0 : valid L (2 * k.val) := by unfold valid big at *; omega
      have v1 : valid L (2 * k.val + 1) := by unfold valid big at *; omega
      have v2 : valid L (2 * k.val + 2) := by unfold valid big at *; omega
      have v3' : valid L (2 * k.val + 3) := by unfold valid big at *; omega
      have hm0 : ¬ (2 ≤ 2 * k.val ∧ valid L (2 * k.val - 2)) := by omega
      have hm1 : ¬ (2 ≤ 2 * k.val + 1 ∧ valid L (2 * k.val + 1 - 2)) := by omega
      ihave S8 := (Entails.of_eq (inSlotV_pos d L fx v0)) $$ S8
      icases S8 with ⟨%g4, %hin4, F8⟩
      ihave S9 := (Entails.of_eq (inSlotV_pos d L fx v1)) $$ S9
      icases S9 with ⟨%g5, %hin5, F9⟩
      ihave S10 := (Entails.of_eq (outSlotV_neg d L fx hm0)) $$ S10
      icases S10 with ⟨⟨%g6, R6⟩, F10⟩
      ihave S11 := (Entails.of_eq (outSlotV_neg d L fx hm1)) $$ S11
      icases S11 with ⟨⟨%g7, R7⟩, F11⟩
      ihave HX := (Entails.of_eq (xSet_out (xP d L fx) k.val hk)) $$ HX
      icases HX with ⟨X2, X3, HX⟩
      ihave X2 := (Entails.of_eq (xP_pos d L fx v2)) $$ X2
      ihave X2 := (Entails.of_eq (in_congr d L (off_6 L k v2).symm (in_inb L _) (k13_off6_inb L k k13_h3) fx)) $$ X2
      ihave X3 := (Entails.of_eq (xP_pos d L fx v3')) $$ X3
      ihave X3 := (Entails.of_eq (in_congr d L (off_11 L k v3').symm (in_inb L _) (k13_off11_inb L k k13_h6) fx)) $$ X3
      ihave HOut := (Entails.of_eq (oSet_out (oMix d L fx k.val) k.val hk)) $$ HOut
      icases HOut with ⟨Y0, Y1, HOut⟩
      ihave Y0 := (Entails.of_eq ((oMix_ge d L fx (t := k.val) (n := 2 * k.val) (by omega)).trans (oP_pos (F := F) d L v0))) $$ Y0
      icases Y0 with ⟨%f0, Y0⟩
      ihave Y0 := (Entails.of_eq (out_congr d L (off_5 L k v0).symm (out_inb L _) (k13_off5_inb L k k13_h2) f0)) $$ Y0
      ihave Y1 := (Entails.of_eq ((oMix_ge d L fx (t := k.val) (n := 2 * k.val + 1) (by omega)).trans (oP_pos (F := F) d L v1))) $$ Y1
      icases Y1 with ⟨%f1, Y1⟩
      ihave Y1 := (Entails.of_eq (out_congr d L (off_10 L k v1).symm (out_inb L _) (k13_off10_inb L k k13_h5) f1)) $$ Y1
      sl_exec
      sl_for (laneV0 d L g4) $$ [F8_dst R6]
      case region =>
        intro (j : Fin k13_t2_loop.trips) _
        unfold laneV0
        iintro ⟨HA, %g, HB, %hl⟩
        sl_exec
        sl_step
        isplitl [HA]; · iexact HA
        iexists _; isplitl [HB]; · iexact HB
        ipureintro; exact lanes_step d L a4 a6 g4 g j _ _ hl
      · unfold laneV0
        isplitl [F8_dst]; · iexact F8_dst
        iexists _; isplitl [R6]; · iexact R6
        ipureintro; exact lanes_zero d L a4 a6 g4 _
      iintro %_ HI
      unfold laneV0
      icases HI with ⟨H4, %g6', H6, %hl6⟩
      have hl6 : Lanes d L a4 a6 g4 g6' 200 := Eq.mp (congrArg (Lanes d L a4 a6 g4 g6') trips2) hl6
      sl_exec
      sl_for (laneV1 d L g5) $$ [F9_dst R7]
      case region =>
        intro (j : Fin k13_t3_loop.trips) _
        unfold laneV1
        iintro ⟨HA, %g, HB, %hl⟩
        sl_exec
        sl_step
        isplitl [HA]; · iexact HA
        iexists _; isplitl [HB]; · iexact HB
        ipureintro; exact lanes_step' d L a5 a7 g5 g j _ _ hl
      · unfold laneV1
        isplitl [F9_dst]; · iexact F9_dst
        iexists _; isplitl [R7]; · iexact R7
        ipureintro; exact lanes_zero d L a5 a7 g5 _
      iintro %_ HI
      unfold laneV1
      icases HI with ⟨H5, %g7', H7, %hl7⟩
      have hl7 : Lanes d L a5 a7 g5 g7' 200 := Eq.mp (congrArg (Lanes d L a5 a7 g5 g7') trips3) hl7
      sl_exec
      sl_step
      isplitr; · iexact Hmw
      isplitl [HO]
      · iexists _; isplitr
        rotate_left
        · iexact HO
        ipureintro; intro p hp
        rcases Finset.mem_insert.mp hp with rfl | hp
        · exact .inr rfl
        rcases Finset.mem_insert.mp hp with rfl | hp
        · exact .inr rfl
        exact hW' p hp
      isplitl [HX F8_src F9_src]
      · iapply (Entails.of_eq (xSet_in (xP d L fx) k.val hk).symm)
        isplitl [F8_src]; · iapply (Entails.of_eq (xP_pos d L fx v0).symm); iexact F8_src
        isplitl [F9_src]; · iapply (Entails.of_eq (xP_pos d L fx v1).symm); iexact F9_src
        iexact HX
      isplitl [HOut]
      · iapply (Entails.of_eq (congrArg (fun s => bigSep s (oMix d L fx (k.val + 1))) (show oCore k.val = oSet (k.val + 1) by rw [hk0]; decide)))
        iapply (Entails.of_eq (oMix_core d L fx k.val)); iexact HOut
      isplitl [F8]
      · iapply (Entails.of_eq (congrArg (inSlotV d L fx a4 cc13_scratch4.sem) (show 2 * k.val + 2 = 2 * (k.val + 1) by ring)))
        iapply (fl_inV d L fx (off_6 L k v2) (k13_off6_inb L k k13_h3) v2 a4 cc13_scratch4.sem); iexists _, _
        isplitr
        rotate_left
        · iexact F8
        ipureintro; intro y; rfl
      isplitl [F10 H6]
      · iapply (Entails.of_eq (congrArg (outSlotV d L fx a6 cc13_scratch6.sem) (show 2 * k.val + 2 = 2 * (k.val + 1) by ring)))
        iapply (fl_outV d L fx (off_5 L k v0) (k13_off5_inb L k k13_h2) v0 a4 a6 cc13_scratch6.sem f0 g4 g6' hl6 hin4); iexists _
        isplitr
        rotate_left
        · isplitl [F10]; · iexact F10
          iexact H6
        ipureintro; intro y; rfl
      isplitl [F9]
      · iapply (Entails.of_eq (congrArg (inSlotV d L fx a5 cc13_scratch5.sem) (show 2 * k.val + 3 = 2 * (k.val + 1) + 1 by ring)))
        iapply (fl_inV d L fx (off_11 L k v3') (k13_off11_inb L k k13_h6) v3' a5 cc13_scratch5.sem); iexists _, _
        isplitr
        rotate_left
        · iexact F9
        ipureintro; intro y; rfl
      · iapply (Entails.of_eq (congrArg (outSlotV d L fx a7 cc13_scratch7.sem) (show 2 * k.val + 1 + 2 = 2 * (k.val + 1) + 1 by ring)))
        iapply (fl_outV d L fx (off_10 L k v1) (k13_off10_inb L k k13_h5) v1 a5 a7 cc13_scratch7.sem f1 g5 g7' hl7 hin5); iexists _
        isplitr
        rotate_left
        · isplitl [F11]; · iexact F11
          iexact H7
        ipureintro; intro y; rfl
  · unfold invV
    isplitr; · iexact Hmw
    isplitl [HO]
    · iexists W; isplitr
      · ipureintro; exact fun p hp => .inl hp
      · iexact HO
    isplitl [HX]; · iexact HX
    isplitl [HOut]; · iapply (Entails.of_eq (oMix_zero d L fx).symm); iexact HOut
    isplitl [S8]; · iexact S8
    isplitl [H6 Hs10]
    · rw [outSlotV_neg d L fx (by omega)]; isplitl [H6]; · iexists _; iexact H6
      iexact Hs10
    isplitl [S9]; · iexact S9
    rw [outSlotV_neg d L fx (by omega)]; isplitl [H7]; · iexists _; iexact H7
    iexact Hs11
  iintro %acc' HI
  ihave HI := (Entails.of_eq (congrArg (fun t => invV d L O W fx t acc') trips1)) $$ HI
  unfold invV
  icases HI with ⟨-, ⟨%W', %hW', HO⟩, HX, HOut, S8, S10, S9, S11⟩
  have nv16 : ¬ valid L (2 * 8) := by unfold valid; omega
  have nv17 : ¬ valid L (2 * 8 + 1) := by unfold valid; omega
  have hm14 : 2 ≤ 2 * 8 ∧ valid L (2 * 8 - 2) := ⟨by omega, Or.inl (by omega)⟩
  ihave S8 := (Entails.of_eq (inSlotV_neg d L fx nv16)) $$ S8
  icases S8 with ⟨⟨%g4', H4⟩, Hs8⟩
  ihave S9 := (Entails.of_eq (inSlotV_neg d L fx nv17)) $$ S9
  icases S9 with ⟨⟨%g5', H5⟩, Hs9⟩
  ihave S10 := (Entails.of_eq (outSlotV_pos d L fx hm14)) $$ S10
  icases S10 with ⟨%g6', F10, R6⟩
  by_cases hb : big L
  · have k13_h8 : k13_cond8 L = 1#1 := (cond8_iff L).mpr hb
    have hm15 : 2 ≤ 2 * 8 + 1 ∧ valid L (2 * 8 + 1 - 2) := ⟨by omega, Or.inr ⟨by omega, hb⟩⟩
    ihave S11 := (Entails.of_eq (outSlotV_pos d L fx hm15)) $$ S11
    icases S11 with ⟨%g7', F11, R7⟩
    sl_exec
    sl_step
    isplitl [HX]; · iapply (xRange_end d L fx); iexact HX
    isplitl [HOut F10_dst F11_dst]
    · iapply (Entails.of_eq (oRange_end (oQ d L fx)).symm)
      isplitl [F10_dst]; · iapply (Entails.of_eq (oQ_pos d L fx hm14.2).symm); iexact F10_dst
      isplitl [F11_dst]; · iapply (Entails.of_eq (oQ_pos d L fx hm15.2).symm); iexact F11_dst
      iapply (Entails.of_eq (oMix_end d L fx)); iexact HOut
    isplitl [H4]; · iexists _; iexact H4
    isplitl [H5]; · iexists _; iexact H5
    isplitl [R6]; · iexists _; iexact R6
    isplitl [R7]; · iexists _; iexact R7
    isplitl [Hs8]; · iexact Hs8
    isplitl [Hs9]; · iexact Hs9
    isplitl [F10]; · iexact F10
    isplitl [F11]; · iexact F11
    isplitl [HO]
    · iexists _; isplitr
      rotate_left
      · iexact HO
      ipureintro; intro p hp
      rcases Finset.mem_insert.mp hp with rfl | hp
      · exact .inr rfl
      rcases Finset.mem_insert.mp hp with rfl | hp
      · exact .inr rfl
      exact hW' p hp
    iexact HR
  · have k13_h8 : ¬ k13_cond8 L = 1#1 := fun h => hb ((cond8_iff L).mp h)
    have hm15 : ¬ (2 ≤ 2 * 8 + 1 ∧ valid L (2 * 8 + 1 - 2)) := by intro h; have := h.2; unfold valid at this; omega
    ihave S11 := (Entails.of_eq (outSlotV_neg d L fx hm15)) $$ S11
    icases S11 with ⟨⟨%g7', R7⟩, F11⟩
    sl_exec
    sl_step
    isplitl [HX]; · iapply (xRange_end d L fx); iexact HX
    isplitl [HOut F10_dst]
    · iapply (Entails.of_eq (oRange_end (oQ d L fx)).symm)
      isplitl [F10_dst]; · iapply (Entails.of_eq (oQ_pos d L fx hm14.2).symm); iexact F10_dst
      isplitr; · iapply (Entails.of_eq (oQ_neg d L fx (n := 15) (by unfold valid; omega)).symm); iempintro
      iapply (Entails.of_eq (oMix_end d L fx)); iexact HOut
    isplitl [H4]; · iexists _; iexact H4
    isplitl [H5]; · iexists _; iexact H5
    isplitl [R6]; · iexists _; iexact R6
    isplitl [R7]; · iexists _; iexact R7
    isplitl [Hs8]; · iexact Hs8
    isplitl [Hs9]; · iexact Hs9
    isplitl [F10]; · iexact F10
    isplitl [F11]; · iexact F11
    isplitl [HO]
    · iexists _; isplitr
      rotate_left
      · iexact HO
      ipureintro; intro p hp
      rcases Finset.mem_insert.mp hp with rfl | hp
      · exact .inr rfl
      exact hW' p hp
    iexact HR

/-! The subcore's scoped storage: the four staging buffers and the four semaphores of this call, and the rest. -/

abbrev c8 : GSem nD τ sig := (thr d L, SemLoc.dma cc13_scratch4.sem)
abbrev c9 : GSem nD τ sig := (thr d L, SemLoc.dma cc13_scratch5.sem)
abbrev c10 : GSem nD τ sig := (thr d L, SemLoc.dma cc13_scratch6.sem)
abbrev c11 : GSem nD τ sig := (thr d L, SemLoc.dma cc13_scratch7.sem)

omit [FloatOps F] in
theorem ownSems0_V :
    (ownSems0 (thr d L) : sProp 𝕄)
      = iprop(semVal (c8 d L) 0 ∗ semVal (c9 d L) 0 ∗ semVal (c10 d L) 0 ∗ semVal (c11 d L) 0
          ∗ bigSep (((((ownCells (thr d L)).erase (c8 d L)).erase (c9 d L)).erase (c10 d L)).erase (c11 d L)) fun g => semVal g 0) := by
  unfold SparseCore.Cfg.ownSems0
  rw [SparseCore.bigSep_erase' ((mem_ownCells (g := c8 d L)).mpr ⟨rfl, by
      show (SemLoc.dma cc13_scratch4.sem : SemLoc sig).isScoped .scVector = true; decide⟩),
    SparseCore.bigSep_erase' (Finset.mem_erase.mpr ⟨fun e => absurd (Prod.mk.inj e).2 (by decide), (mem_ownCells (g := c9 d L)).mpr ⟨rfl, by
      show (SemLoc.dma cc13_scratch5.sem : SemLoc sig).isScoped .scVector = true; decide⟩⟩),
    SparseCore.bigSep_erase' (Finset.mem_erase.mpr ⟨fun e => absurd (Prod.mk.inj e).2 (by decide), Finset.mem_erase.mpr ⟨fun e => absurd (Prod.mk.inj e).2 (by decide),
      (mem_ownCells (g := c10 d L)).mpr ⟨rfl, by show (SemLoc.dma cc13_scratch6.sem : SemLoc sig).isScoped .scVector = true; decide⟩⟩⟩),
    SparseCore.bigSep_erase' (Finset.mem_erase.mpr ⟨fun e => absurd (Prod.mk.inj e).2 (by decide), Finset.mem_erase.mpr ⟨fun e => absurd (Prod.mk.inj e).2 (by decide),
      Finset.mem_erase.mpr ⟨fun e => absurd (Prod.mk.inj e).2 (by decide),
      (mem_ownCells (g := c11 d L)).mpr ⟨rfl, by show (SemLoc.dma cc13_scratch7.sem : SemLoc sig).isScoped .scVector = true; decide⟩⟩⟩⟩)]

abbrev pV (L : grid13.Coords) : Proc τ := Proc.scVector (cV L) (jV L)

omit [FloatOps F] in
theorem ownBufs_V :
    (ownBufs (thr d L) : sProp 𝕄)
      = iprop((∃ f, (thr d L).loc cc13_scratch0 ↦{fullShare} f) ∗ (∃ f, (thr d L).loc cc13_scratch1 ↦{fullShare} f)
          ∗ (∃ f, (thr d L).loc cc13_scratch2 ↦{fullShare} f) ∗ (∃ f, (thr d L).loc cc13_scratch3 ↦{fullShare} f)
          ∗ bigSep (((((ownRefs (τ := τ) (pV L)).erase ((pV L).devRef cc13_scratch0)).erase ((pV L).devRef cc13_scratch1)).erase
              ((pV L).devRef cc13_scratch2)).erase ((pV L).devRef cc13_scratch3))
              fun b => iprop(∃ f, ((d, b) : Loc nD τ sig) ↦{fullShare} f)) := by
  unfold SparseCore.Cfg.ownBufs
  refine (SparseCore.bigSep_erase' (SparseCore.Cfg.mem_ownRefs_of_owner (p := pV L) (b := (pV L).devRef cc13_scratch0) rfl)).trans ?_
  rw [SparseCore.bigSep_erase' (Finset.mem_erase.mpr ⟨fun e => absurd (Proc.devRef_injective _ e) (show (cc13_scratch1 : Ref sig .scVector) ≠ cc13_scratch0 by decide),
      SparseCore.Cfg.mem_ownRefs_of_owner (p := pV L) (b := (pV L).devRef cc13_scratch1) rfl⟩),
    SparseCore.bigSep_erase' (Finset.mem_erase.mpr ⟨fun e => absurd (Proc.devRef_injective _ e) (show (cc13_scratch2 : Ref sig .scVector) ≠ cc13_scratch1 by decide),
      Finset.mem_erase.mpr ⟨fun e => absurd (Proc.devRef_injective _ e) (show (cc13_scratch2 : Ref sig .scVector) ≠ cc13_scratch0 by decide),
      SparseCore.Cfg.mem_ownRefs_of_owner (p := pV L) (b := (pV L).devRef cc13_scratch2) rfl⟩⟩),
    SparseCore.bigSep_erase' (Finset.mem_erase.mpr ⟨fun e => absurd (Proc.devRef_injective _ e) (show (cc13_scratch3 : Ref sig .scVector) ≠ cc13_scratch2 by decide),
      Finset.mem_erase.mpr ⟨fun e => absurd (Proc.devRef_injective _ e) (show (cc13_scratch3 : Ref sig .scVector) ≠ cc13_scratch1 by decide),
      Finset.mem_erase.mpr ⟨fun e => absurd (Proc.devRef_injective _ e) (show (cc13_scratch3 : Ref sig .scVector) ≠ cc13_scratch0 by decide),
      SparseCore.Cfg.mem_ownRefs_of_owner (p := pV L) (b := (pV L).devRef cc13_scratch3) rfl⟩⟩⟩)]

/-- The rest of the subcore's scoped storage, which the task does not touch. -/
def restR : sProp 𝕄 :=
  iprop((bigSep (((((ownRefs (τ := τ) (pV L)).erase ((pV L).devRef cc13_scratch0)).erase ((pV L).devRef cc13_scratch1)).erase
              ((pV L).devRef cc13_scratch2)).erase ((pV L).devRef cc13_scratch3))
              fun b => iprop(∃ f, ((d, b) : Loc nD τ sig) ↦{fullShare} f))
      ∗ bigSep (((((ownCells (thr d L)).erase (c8 d L)).erase (c9 d L)).erase (c10 d L)).erase (c11 d L)) fun g => semVal g 0)

theorem body_pre (hO : ∀ g, O g none = 0) :
    iprop(levAts (K (F := F)).L (K (F := F)).lev ∗ emp ∗ goRes d L fx ∗ ownBufs (thr d L) ∗ ownSems0 (thr d L) ∗ owes (thr d L) O W)
      ⊢ runPre d L O W fx (restR (F := F) d L) := by
  rw [ownSems0_V, ownBufs_V]
  unfold goRes runPre restR
  iintro ⟨#Hlv, -, ⟨HX, HOut⟩, ⟨H4, H5, H6, H7, Hbufs⟩, ⟨Hs8, Hs9, Hs10, Hs11, Hsems⟩, HO⟩
  ihave Hmw := ((K (F := F)).mayWaits_none (thr := thr d L) hO) $$ Hlv
  isplitr; · iexact Hmw
  isplitl [HO]; · iexact HO
  isplitl [HX]; · iexact HX
  isplitl [HOut]; · iexact HOut
  isplitl [H4]; · iexact H4
  isplitl [H5]; · iexact H5
  isplitl [H6]; · iexact H6
  isplitl [H7]; · iexact H7
  isplitl [Hs8]; · iexact Hs8
  isplitl [Hs9]; · iexact Hs9
  isplitl [Hs10]; · iexact Hs10
  isplitl [Hs11]; · iexact Hs11
  isplitl [Hbufs]; · iexact Hbufs
  iexact Hsems

theorem body_post :
    runPost d L O W fx (restR (F := F) d L)
      ⊢ iprop(tdRes d L fx ∗ ownBufs (thr d L) ∗ ownSems0 (thr d L) ∗ ∃ W', ⌜∀ p ∈ W', p ∈ W ∨ p.2 = none⌝ ∗ owes (thr d L) O W') := by
  rw [ownSems0_V, ownBufs_V]
  unfold tdRes runPost restR
  iintro ⟨HX, HOut, H4, H5, H6, H7, Hs8, Hs9, Hs10, Hs11, HW, Hbufs, Hsems⟩
  isplitl [HX HOut]
  · isplitl [HX]; · iexact HX
    iexact HOut
  isplitl [H4 H5 H6 H7 Hbufs]
  · isplitl [H4]; · iexact H4
    isplitl [H5]; · iexact H5
    isplitl [H6]; · iexact H6
    isplitl [H7]; · iexact H7
    iexact Hbufs
  isplitl [Hs8 Hs9 Hs10 Hs11 Hsems]
  · isplitl [Hs8]; · iexact Hs8
    isplitl [Hs9]; · iexact Hs9
    isplitl [Hs10]; · iexact Hs10
    isplitl [Hs11]; · iexact Hs11
    iexact Hsems
  iexact HW

/-- The task in the launch theorem's shape: from what the call hands the tile and the subcore's scoped storage to
    what the tile hands back and the storage again. -/
theorem tile_body (hF : (K (F := F)).Facts) (hO : ∀ g, O g none = 0) :
    iprop(levAts (K (F := F)).L (K (F := F)).lev ∗ emp ∗ goRes d L fx ∗ scopedBufs (thr d L) ∗ scopedSems0 (thr d L) ∗ owes (thr d L) O W)
      ⊢ wp frame (wpE (defs₀ (F := F)) 𝒱₀ (thr d L) none) Set.univ
          (cc13_sc_group L xtW (Memref.isWhole_whole _) oW (Memref.isWhole_whole _) a4 (Memref.isWhole_whole _) a5 (Memref.isWhole_whole _)
            a6 (Memref.isWhole_whole _) a7 (Memref.isWhole_whole _) cc13_scratch4 cc13_scratch5 cc13_scratch6 cc13_scratch7)
          fun _ => iprop(tdRes d L fx ∗ scopedBufs (thr d L) ∗ scopedSems0 (thr d L)
            ∗ ∃ W', ⌜∀ p ∈ W', p ∈ W ∨ p.2 = none⌝ ∗ owes (thr d L) O W') := by
  rw [(K (F := F)).scopedBufs_V hF d (cV L) (jV L), SparseCore.Cfg.scopedSems0_V (Val := Elt F) d (cV L) (jV L)]
  exact (body_pre d L O W fx hO).trans ((tile_run d L O W fx (restR (F := F) d L)).trans (wp_mono frame _ _ fun _ => body_post d L O W fx))

end Tile

end Cert.Proof.TileB13

end
-- ==== Proof.TileVal14.lean ====
/-
  What the staging buffers of one vector subcore hold while it copies a piece of 3200 consecutive elements of row 14 of
  the transposed argument into the flat result, read index by index. No program and no ownership here: only the contents.

  A transfer lands the piece in row 0 of an 8 × 3200 staging array (`InRow`: position (0, t) of that row holds element
  (0, pos + t) of the transposed argument, `pos` the piece's first column). A loop of 200 trips copies that row, 16 lanes
  per trip, into the first 3200 elements of a flat staging array of 25600: trip `j` reads the 1 × 16 window at columns
  [16 j, 16 j + 16) of row 0 and writes it, flattened, at elements [16 j, 16 j + 16). After `j` trips the first 16 j
  elements of the flat array are the first 16 j elements of the row (`Lanes`); a trip extends the prefix by 16
  (`lanes_step`: an element below 16 j is outside the window written and keeps its value, an element of the window reads
  the lane written there, which is the row's element at the same column). A second transfer writes the first 3200
  elements of the flat array to the piece of the result at the same `pos`; so every element of that piece of the result
  holds the element of row 14 of the transposed argument at its own position (`out_written`): the composite of the three
  index maps t ↦ (0, pos + t) ↦ (0, t) ↦ t ↦ pos + t is the identity on positions of the row.
-/
import proofs.«206869_g37898791420194_cont_8to1_b_558_20_alg».proof.Proof.TileK14Defs
import proofs.«206869_g37898791420194_cont_8to1_b_558_20_alg».proof.Proof.Spec
import Idealize.ShloMosaic.Lib.WritesUnit
import Idealize.ShloMosaic.Lib.ValueLayout

noncomputable section

namespace Cert.Proof.TileVal14

open Cert.Proof.TileK14 Cert.KernelIdeal Cert.KernelIdeal.Gen
open Idealize.ShloMosaic Idealize.ShloMosaic.ValueIdx

variable {F : FTy → Type} [FloatOps F]
variable (d : Dev nD) (L : grid14.Coords)
variable (fx : Buf (Elt F) ((Memref.whole main_v0_scv : Memref sig .scVector .hbm S22x1600000 .f32).view.loc (thr d L)))

abbrev rowRect : Rect S8x3200 := Rect.unit (s := S8x3200) ![0, 0] S1x3200.size inb_S8x3200_S1x3200_0_0

/-- row 0 of the staging array is piece n of the argument row -/
def InRow (a : Memref sig .scVector .vmem S8x3200 .f32) (ga : Buf (Elt F) (a.view.loc (thr d L))) (n : ℕ) : Prop :=
  ∀ y : S1x3200.Idx, a.view.read (Elt F) ga (rowRect.emb y) = (inM L n).view.read (Elt F) fx y

theorem inRow_fetch (a : Memref sig .scVector .vmem S8x3200 .f32) (gold : Buf (Elt F) (a.view.loc (thr d L)))
    (w : S1x3200.Idx → Elt F .f32) (n : ℕ) (hw : ∀ y, w y = (inM L n).view.read (Elt F) fx y) :
    InRow d L fx a (a.view.writes (Elt F) gold [⟨rowRect, w⟩]) n :=
  fun y => (View.read_writes_cons_emb a.view gold rowRect w [] y).trans (hw y)

def Lanes (a : Memref sig .scVector .vmem S8x3200 .f32) (b : Memref sig .scVector .vmem S25600 .f32)
    (ga : Buf (Elt F) (a.view.loc (thr d L))) (gb : Buf (Elt F) (b.view.loc (thr d L))) (j : ℕ) : Prop :=
  ∀ (r : ℕ) (hr : r < 3200), r < 16 * j →
    b.view.read (Elt F) gb (ix1 (⟨r, by omega⟩ : Fin 25600)) = a.view.read (Elt F) ga (ix2 (0 : Fin 8) (⟨r, hr⟩ : Fin 3200))

theorem lanes_zero (a : Memref sig .scVector .vmem S8x3200 .f32) (b : Memref sig .scVector .vmem S25600 .f32)
    (ga : Buf (Elt F) (a.view.loc (thr d L))) (gb : Buf (Elt F) (b.view.loc (thr d L))) : Lanes d L a b ga gb 0 := by
  intro r hr h; omega

/-- The 1 × 16 window at column `c` of the staging array, read at lane `t`, is element `(0, c + t)`. -/
theorem idx_window {off : Fin 2 → ℕ} {c : ℕ} (h : off = ![0, c]) (p : ∀ a', off a' + S1x16.size a' ≤ S8x3200.size a')
    (t : Fin 16) (hr : c + t.val < 3200) :
    (Rect.unit (s := S8x3200) off S1x16.size p).toLoadRect.idx (ix2 (0 : Fin 1) t) = ix2 (0 : Fin 8) (⟨c + t.val, hr⟩ : Fin 3200) := by
  subst h
  funext a'; apply Fin.ext
  rw [LoadRect.idx_apply]
  match a' with
  | ⟨0, _⟩ => show 0 + 1 * 0 = 0; omega
  | ⟨1, _⟩ => show c + 1 * t.val = c + t.val; omega

/-- One trip of a lane-copy loop, the offsets given by their closed forms. -/
theorem lanes_step_core (a : Memref sig .scVector .vmem S8x3200 .f32) (b : Memref sig .scVector .vmem S25600 .f32)
    (ga : Buf (Elt F) (a.view.loc (thr d L))) (gb : Buf (Elt F) (b.view.loc (thr d L)))
    (t : ℕ) {off3 : Fin 2 → ℕ} {off4 : Fin 1 → ℕ} (h3 : off3 = ![0, 16 * t]) (h4 : off4 = ![16 * t])
    (p3 : ∀ a', off3 a' + S1x16.size a' ≤ S8x3200.size a') (p4 : ∀ a', off4 a' + S16.size a' ≤ S25600.size a')
    (h : Lanes d L a b ga gb t) :
    Lanes d L a b ga (b.view.writes (Elt F) gb [⟨Rect.unit (s := S25600) off4 S16.size p4,
      shapeCast S16 (a.view.readAt (Elt F) (Rect.unit (s := S8x3200) off3 S1x16.size p3).toLoadRect ga) shapeCasts_S1x16_S16⟩]) (t + 1) := by
  intro r hr hlt
  by_cases hlo : r < 16 * t
  · refine (View.read_writes_cons_unit_of_not_mem b.view gb p4 _ [] _ h4 (0 : Fin 1) (Or.inl ?_)).trans (h r hr hlo)
    show r < 16 * t
    exact hlo
  · have hx : r - 16 * t < 16 := by omega
    refine (View.read_writes_cons_unit_of_mem b.view gb p4 _ [] _ (ix1 (⟨r - 16 * t, hx⟩ : Fin 16)) h4 ?_).trans ?_
    · intro a'
      match a' with
      | ⟨0, _⟩ => show r = 16 * t + (r - 16 * t); omega
    · rw [shapeCast_1a_a_apply, View.readAt_apply, idx_window h3 p3 ⟨r - 16 * t, hx⟩ (by show 16 * t + (r - 16 * t) < 3200; omega)]
      congr 2
      apply Fin.ext
      show 16 * t + (r - 16 * t) = r
      omega

theorem lanes_step (a : Memref sig .scVector .vmem S8x3200 .f32) (b : Memref sig .scVector .vmem S25600 .f32)
    (ga : Buf (Elt F) (a.view.loc (thr d L))) (gb : Buf (Elt F) (b.view.loc (thr d L)))
    (j : Fin k14_t2_loop.trips) (p3 : ∀ a', (k14_off3 j) a' + S1x16.size a' ≤ S8x3200.size a')
    (p4 : ∀ a', (k14_off4 j) a' + S16.size a' ≤ S25600.size a') (h : Lanes d L a b ga gb j.val) :
    Lanes d L a b ga (b.view.writes (Elt F) gb [⟨Rect.unit (s := S25600) (k14_off4 j) S16.size p4,
      k14_pay1 (a.view.readAt (Elt F) (Rect.unit (s := S8x3200) (k14_off3 j) S1x16.size p3).toLoadRect ga)⟩]) (j.val + 1) :=
  lanes_step_core d L a b ga gb j.val (k14_off3_eq j) (k14_off4_eq j) p3 p4 h

theorem lanes_step' (a : Memref sig .scVector .vmem S8x3200 .f32) (b : Memref sig .scVector .vmem S25600 .f32)
    (ga : Buf (Elt F) (a.view.loc (thr d L))) (gb : Buf (Elt F) (b.view.loc (thr d L)))
    (j : Fin k14_t3_loop.trips) (p3 : ∀ a', (k14_off8 j) a' + S1x16.size a' ≤ S8x3200.size a')
    (p4 : ∀ a', (k14_off9 j) a' + S16.size a' ≤ S25600.size a') (h : Lanes d L a b ga gb j.val) :
    Lanes d L a b ga (b.view.writes (Elt F) gb [⟨Rect.unit (s := S25600) (k14_off9 j) S16.size p4,
      k14_pay2 (a.view.readAt (Elt F) (Rect.unit (s := S8x3200) (k14_off8 j) S1x16.size p3).toLoadRect ga)⟩]) (j.val + 1) :=
  lanes_step_core d L a b ga gb j.val (k14_off8_eq j) (k14_off9_eq j) p3 p4 h

/-- Position `y` of the write-out window of the flat staging array is its element `y 0`. -/
theorem stg_emb (y : S3200.Idx) (hy : (y 0).val < 25600) :
    (Rect.unit (s := S25600) ![0] S3200.size inb_S25600_S3200_0).emb y = ix1 (⟨(y 0).val, hy⟩ : Fin 25600) := by
  funext a'; apply Fin.ext
  match a' with
  | ⟨0, _⟩ => show 0 + 1 * (y 0).val = (y 0).val; omega

/-- Position `(0, t)` of row 0 of the staging array is its element `(0, t)`. -/
theorem row_emb (t : Fin 3200) : rowRect.emb (ix2 (0 : Fin 1) t) = ix2 (0 : Fin 8) t := by
  funext a'; apply Fin.ext
  match a' with
  | ⟨0, _⟩ => show 0 + 1 * 0 = 0; omega
  | ⟨1, _⟩ => show 0 + 1 * t.val = t.val; omega

/-- Position `(0, t)` of piece `n` of the argument row is element `(0, pos + t)` of the transposed argument;
    position `y` of piece `n` of the result is element `pos + y 0` of the result. -/
theorem in_emb (n : ℕ) (t : Fin 3200) (h : pos L n + t.val < 1600000) :
    (inM L n).view.emb (ix2 (0 : Fin 1) t) = ix2 (14 : Fin 22) (⟨pos L n + t.val, h⟩ : Fin 1600000) := by
  funext a'; apply Fin.ext
  match a' with
  | ⟨0, _⟩ => show 14 + 1 * 0 = 14; omega
  | ⟨1, _⟩ => show pos L n + 1 * t.val = pos L n + t.val; omega

theorem out_emb (n : ℕ) (y : S3200.Idx) (h : pos L n + (y 0).val < 1600000) :
    (outM L n).view.emb y = ix1 (⟨pos L n + (y 0).val, h⟩ : Fin 1600000) := by
  funext a'; apply Fin.ext
  match a' with
  | ⟨0, _⟩ => show pos L n + 1 * (y 0).val = pos L n + (y 0).val; omega

/-- Both lane-copy loops run 200 trips: 200 · 16 = 3200, the whole row. -/
theorem trips2 : k14_t2_loop.trips = 200 := by decide
theorem trips3 : k14_t3_loop.trips = 200 := by decide

/-- After all its trips a lane-copy loop has copied the whole row. -/
theorem lanes_all (a : Memref sig .scVector .vmem S8x3200 .f32) (b : Memref sig .scVector .vmem S25600 .f32)
    (ga : Buf (Elt F) (a.view.loc (thr d L))) (gb : Buf (Elt F) (b.view.loc (thr d L)))
    (h : Lanes d L a b ga gb k14_t2_loop.trips) : Lanes d L a b ga gb 200 := trips2 ▸ h
theorem lanes_all' (a : Memref sig .scVector .vmem S8x3200 .f32) (b : Memref sig .scVector .vmem S25600 .f32)
    (ga : Buf (Elt F) (a.view.loc (thr d L))) (gb : Buf (Elt F) (b.view.loc (thr d L)))
    (h : Lanes d L a b ga gb k14_t3_loop.trips) : Lanes d L a b ga gb 200 := trips3 ▸ h

/-- The write-out of a piece: the first 3200 elements of the flat staging array, which the 200 lane copies filled from
    row 0 of the staging array, which the fetch filled from piece `n` of row 14 of the transposed argument, land at
    piece `n` of the result, at the same positions of the row. -/
theorem out_written (a : Memref sig .scVector .vmem S8x3200 .f32) (b : Memref sig .scVector .vmem S25600 .f32) (n : ℕ)
    (ga : Buf (Elt F) (a.view.loc (thr d L))) (gb : Buf (Elt F) (b.view.loc (thr d L)))
    (f0 : Buf (Elt F) ((outM L n).view.loc (thr d L))) (w : S3200.Idx → Elt F .f32)
    (hw : ∀ y, w y = (stg b).view.read (Elt F) gb y) (hl : Lanes d L a b ga gb 200) (hr : InRow d L fx a ga n) (hv : valid L n) :
    ∀ i ∈ (outM L n).view.set, ((outM L n).view.writes (Elt F) f0 [⟨Rect.whole _, w⟩]) i = Cert.Spec.row 14 fx i := by
  intro i hi
  obtain ⟨y, -, rfl⟩ := Finset.mem_map.mp hi
  have hy : (y 0).val < 3200 := (y 0).isLt
  have hp : pos L n + (y 0).val < 1600000 := by unfold pos; omega
  have e1 : (outM L n).view.writes (Elt F) f0 [⟨Rect.whole _, w⟩] ((outM L n).view.emb y) = w y := by
    have h := View.read_writes_cons_emb (outM L n).view f0 (Rect.whole _) w [] y
    rw [Rect.emb_whole_apply] at h
    exact (cast_eq _ _).symm.trans ((View.read_apply _ _).symm.trans h)
  have e2 : (stg b).view.read (Elt F) gb y = b.view.read (Elt F) gb (ix1 (⟨(y 0).val, by omega⟩ : Fin 25600)) :=
    congrArg (b.view.read (Elt F) gb) (stg_emb y (by omega))
  have e3 : a.view.read (Elt F) ga (ix2 (0 : Fin 8) (⟨(y 0).val, hy⟩ : Fin 3200))
      = (inM L n).view.read (Elt F) fx (ix2 (0 : Fin 1) (⟨(y 0).val, hy⟩ : Fin 3200)) :=
    (congrArg (a.view.read (Elt F) ga) (row_emb ⟨(y 0).val, hy⟩).symm).trans (hr _)
  have e4 : (inM L n).view.read (Elt F) fx (ix2 (0 : Fin 1) (⟨(y 0).val, hy⟩ : Fin 3200))
      = fx (ix2 (14 : Fin 22) (⟨pos L n + (y 0).val, hp⟩ : Fin 1600000)) :=
    ((View.read_apply _ _).trans (cast_eq _ _)).trans (congrArg fx (in_emb L n ⟨(y 0).val, hy⟩ hp))
  have e5 : Cert.Spec.row 14 fx ((outM L n).view.emb y) = fx (ix2 (14 : Fin 22) (⟨pos L n + (y 0).val, hp⟩ : Fin 1600000)) :=
    (congrArg (Cert.Spec.row 14 fx) (out_emb L n y hp)).trans (Cert.Spec.row_apply 14 fx _)
  exact e1.trans ((hw y).trans (e2.trans ((hl _ hy (by omega)).trans (e3.trans (e4.trans e5.symm)))))

end Cert.Proof.TileVal14

end
-- ==== Proof.TileK14.lean ====
/-
  One vector subcore's task of copy kernel 14 (counting from 0), run symbolically: the two fetch slots and two write-out slots
  between trips of the main loop (what each transfer in flight will hand back, and what the staging buffers hold), the
  invariant of the main loop and of the two lane-copy loops, and the task's run — from the tile's pieces of row 14 of
  the transposed argument and of the result to the same pieces with the result holding the row's elements.
-/
import proofs.«206869_g37898791420194_cont_8to1_b_558_20_alg».proof.Proof.TileK14Defs
import proofs.«206869_g37898791420194_cont_8to1_b_558_20_alg».proof.Proof.TileVal14
noncomputable section

namespace Cert.Proof.TileK14

open Cert.KernelIdeal Cert.KernelIdeal.Gen Cert.Proof.TileVal14
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 22) (Elt F) ℕ UU ℕ
local notation "xtW" => (Memref.whole Cert.KernelIdeal.main_v0_scv : Memref Cert.KernelIdeal.sig Kind.scVector Space.hbm Cert.KernelIdeal.S22x1600000 EltTy.f32)
local notation "oW" => (Memref.whole Cert.KernelIdeal.main_v15_scv : Memref Cert.KernelIdeal.sig Kind.scVector Space.hbm Cert.KernelIdeal.S1600000 EltTy.f32)
local notation "a4" => (Memref.whole Cert.KernelIdeal.cc14_scratch0 : Memref Cert.KernelIdeal.sig Kind.scVector Space.vmem Cert.KernelIdeal.S8x3200 EltTy.f32)
local notation "a5" => (Memref.whole Cert.KernelIdeal.cc14_scratch1 : Memref Cert.KernelIdeal.sig Kind.scVector Space.vmem Cert.KernelIdeal.S8x3200 EltTy.f32)
local notation "a6" => (Memref.whole Cert.KernelIdeal.cc14_scratch2 : Memref Cert.KernelIdeal.sig Kind.scVector Space.vmem Cert.KernelIdeal.S25600 EltTy.f32)
local notation "a7" => (Memref.whole Cert.KernelIdeal.cc14_scratch3 : Memref Cert.KernelIdeal.sig Kind.scVector Space.vmem Cert.KernelIdeal.S25600 EltTy.f32)

variable [FloatOps F]

section Tile

variable (d : Dev nD) (L : grid14.Coords)
variable (O : CellTallies nD τ sig (HIx 22)) (W : Waits sig (HIx 22))
variable (fx : Buf (Elt F) ((xtW).view.loc (thr d L)))

/-- Piece `n` of the result at its final contents. -/
abbrev oqPiece (n : ℕ) : sProp 𝕄 := (outM L n).view.loc (thr d L) ↦[(outM L n).view.set]{fullShare} (Cert.Spec.row 14 fx)
theorem oQ_pos {n : ℕ} (v : valid L n) : oQ d L fx n = oqPiece d L fx n := if_pos v
theorem oQ_neg {n : ℕ} (v : ¬ valid L n) : oQ d L fx n = iprop(emp) := if_neg v

/-- A fetch slot, remembering that the staging row it will hand back holds the piece. -/
def inSlotV (a : Memref sig .scVector .vmem S8x3200 .f32) (sm : DmaSem sig) (n : ℕ) : sProp 𝕄 :=
  if valid L n then
    iprop(∃ g, ⌜InRow d L fx a g n⌝ ∗ Transfers.Flight countersEmb (thr d L) (SemLoc.dma sm) (default : HIx 22) NN
      iprop((a.view.loc (thr d L) ↦{fullShare} g) ∗ xtPiece d L fx n))
  else iprop((∃ g, a.view.loc (thr d L) ↦{fullShare} g) ∗ semVal (thr d L, SemLoc.dma sm) 0)

/-- A write-out slot: the piece in flight will come back holding the row's elements. -/
def outSlotV (a : Memref sig .scVector .vmem S25600 .f32) (sm : DmaSem sig) (m : ℕ) : sProp 𝕄 :=
  if 2 ≤ m ∧ valid L (m - 2) then
    iprop(∃ g, Transfers.Flight countersEmb (thr d L) (SemLoc.dma sm) (default : HIx 22) NN
        iprop(oqPiece d L fx (m - 2) ∗ ((stg a).view.loc (thr d L) ↦[(stg a).view.set]{fullShare} g))
      ∗ (a.view.loc (thr d L) ↦[Finset.univ \ (stg a).view.set]{fullShare} g))
  else iprop((∃ g, a.view.loc (thr d L) ↦{fullShare} g) ∗ semVal (thr d L, SemLoc.dma sm) 0)

theorem inSlotV_pos {a : Memref sig .scVector .vmem S8x3200 .f32} {sm : DmaSem sig} {n : ℕ} (v : valid L n) :
    inSlotV d L fx a sm n = iprop(∃ g, ⌜InRow d L fx a g n⌝ ∗ Transfers.Flight countersEmb (thr d L) (SemLoc.dma sm) (default : HIx 22) NN
      iprop((a.view.loc (thr d L) ↦{fullShare} g) ∗ xtPiece d L fx n)) := by unfold inSlotV; rw [if_pos v]
theorem inSlotV_neg {a : Memref sig .scVector .vmem S8x3200 .f32} {sm : DmaSem sig} {n : ℕ} (v : ¬ valid L n) :
    inSlotV d L fx a sm n = iprop((∃ g, a.view.loc (thr d L) ↦{fullShare} g) ∗ semVal (thr d L, SemLoc.dma sm) 0) := by
  unfold inSlotV; rw [if_neg v]
theorem outSlotV_pos {a : Memref sig .scVector .vmem S25600 .f32} {sm : DmaSem sig} {m : ℕ} (h : 2 ≤ m ∧ valid L (m - 2)) :
    outSlotV d L fx a sm m = iprop(∃ g, Transfers.Flight countersEmb (thr d L) (SemLoc.dma sm) (default : HIx 22) NN
        iprop(oqPiece d L fx (m - 2) ∗ ((stg a).view.loc (thr d L) ↦[(stg a).view.set]{fullShare} g))
      ∗ (a.view.loc (thr d L) ↦[Finset.univ \ (stg a).view.set]{fullShare} g)) := by unfold outSlotV; rw [if_pos h]
theorem outSlotV_neg {a : Memref sig .scVector .vmem S25600 .f32} {sm : DmaSem sig} {m : ℕ} (h : ¬ (2 ≤ m ∧ valid L (m - 2))) :
    outSlotV d L fx a sm m = iprop((∃ g, a.view.loc (thr d L) ↦{fullShare} g) ∗ semVal (thr d L, SemLoc.dma sm) 0) := by
  unfold outSlotV; rw [if_neg h]

/-- A fetch just issued: the staging row will hold what the transfer reads, which is the piece. -/
theorem fl_inV {off : Fin 2 → ℕ} {n : ℕ} (h : off = ![14, pos L n]) (p : ∀ a, off a + S1x3200.size a ≤ S22x1600000.size a) (v : valid L n)
    (a : Memref sig .scVector .vmem S8x3200 .f32) (sm : DmaSem sig) :
    (iprop(∃ (gold : Buf (Elt F) (a.view.loc (thr d L))) (w : S1x3200.Idx → Elt F .f32),
        ⌜∀ y, w y = ((xtW).slice (Rect.unit (s := S22x1600000) off S1x3200.size p) (fun _ => rfl)).view.read (Elt F) fx y⌝
        ∗ Transfers.Flight countersEmb (thr d L) (SemLoc.dma sm) (default : HIx 22) NN
          iprop((a.view.loc (thr d L) ↦{fullShare} a.view.writes (Elt F) gold [⟨rowRect, w⟩])
            ∗ (((xtW).slice (Rect.unit (s := S22x1600000) off S1x3200.size p) (fun _ => rfl)).view.loc (thr d L)
                ↦[((xtW).slice (Rect.unit (s := S22x1600000) off S1x3200.size p) (fun _ => rfl)).view.set]{fullShare} fx))) : sProp 𝕄)
      ⊢ inSlotV d L fx a sm n := by
  subst h
  rw [inSlotV_pos d L fx v]
  iintro ⟨%gold, %w, %hw, H⟩
  iexists _
  isplitr
  · ipureintro; exact inRow_fetch d L fx a gold w n hw
  · iexact H

set_option maxHeartbeats 4000000 in
/-- A write-out just issued from a flat staging buffer whose first 3200 elements are the staging row, itself piece
    `n` of the argument row: the piece of the result will hold the row's elements. -/
theorem fl_outV {off : Fin 1 → ℕ} {n : ℕ} (h : off = ![pos L n]) (p : ∀ a, off a + S3200.size a ≤ S1600000.size a) (v : valid L n)
    (ar : Memref sig .scVector .vmem S8x3200 .f32) (a : Memref sig .scVector .vmem S25600 .f32) (sm : DmaSem sig)
    (f0 : Buf (Elt F) ((oW).view.loc (thr d L))) (ga : Buf (Elt F) (ar.view.loc (thr d L))) (gb : Buf (Elt F) (a.view.loc (thr d L)))
    (hl : Lanes d L ar a ga gb 200) (hr : InRow d L fx ar ga n) :
    (iprop(∃ (w : S3200.Idx → Elt F .f32),
        ⌜∀ y, w y = (stg a).view.read (Elt F) gb y⌝
        ∗ Transfers.Flight countersEmb (thr d L) (SemLoc.dma sm) (default : HIx 22) NN
          iprop((((oW).slice (Rect.unit (s := S1600000) off S3200.size p) (fun _ => rfl)).view.loc (thr d L)
                ↦[((oW).slice (Rect.unit (s := S1600000) off S3200.size p) (fun _ => rfl)).view.set]{fullShare}
                  (((oW).slice (Rect.unit (s := S1600000) off S3200.size p) (fun _ => rfl)).view.writes (Elt F) f0 [⟨Rect.whole _, w⟩]))
            ∗ ((stg a).view.loc (thr d L) ↦[(stg a).view.set]{fullShare} gb))
        ∗ (a.view.loc (thr d L) ↦[Finset.univ \ (stg a).view.set]{fullShare} gb)) : sProp 𝕄)
      ⊢ outSlotV d L fx a sm (n + 2) := by
  subst h
  rw [outSlotV_pos d L fx (m := n + 2) ⟨by omega, by simpa using v⟩]
  iintro ⟨%w, %hw, H, R⟩
  have hD : (iprop(((outM L n).view.loc (thr d L) ↦[(outM L n).view.set]{fullShare} ((outM L n).view.writes (Elt F) f0 [⟨Rect.whole _, w⟩]))
          ∗ ((stg a).view.loc (thr d L) ↦[(stg a).view.set]{fullShare} gb)) : sProp 𝕄)
      ⊢ iprop(oqPiece d L fx (n + 2 - 2) ∗ ((stg a).view.loc (thr d L) ↦[(stg a).view.set]{fullShare} gb)) := by
    rw [Nat.add_sub_cancel]
    have e : (((outM L n).view.loc (thr d L) ↦[(outM L n).view.set]{fullShare} ((outM L n).view.writes (Elt F) f0 [⟨Rect.whole _, w⟩])) : sProp 𝕄)
        = oqPiece d L fx n := pointsTo_congr (out_written d L fx ar a n ga gb f0 w hw hl hr v)
    iintro ⟨H1, H2⟩
    isplitl [H1]
    · iapply (Entails.of_eq e); iexact H1
    · iexact H2
  iexists gb
  isplitl [H]
  · iapply (Transfers.Flight_mono countersEmb (thr d L) hD); iexact H
  · iexact R

/-- The result pieces outside the slots before trip `t`: those already written hold the row, the others some contents. -/
def oMix (t n : ℕ) : sProp 𝕄 := if n + 2 < 2 * t then oQ d L fx n else oP (F := F) d L n
theorem oMix_lt {t n : ℕ} (h : n + 2 < 2 * t) : oMix d L fx t n = oQ d L fx n := if_pos h
theorem oMix_ge {t n : ℕ} (h : ¬ n + 2 < 2 * t) : oMix d L fx t n = oP (F := F) d L n := if_neg h
theorem oMix_core (k : ℕ) : bigSep (oCore k) (oMix d L fx k) = bigSep (oCore k) (oMix d L fx (k + 1)) :=
  bigSep_congr fun n hn => by
    have hn' : n + 2 ≠ 2 * k ∧ n + 2 ≠ 2 * k + 1 ∧ n ≠ 2 * k ∧ n ≠ 2 * k + 1 := by
      simp only [oCore, Finset.mem_filter, Finset.mem_range] at hn; exact hn.2
    by_cases h : n + 2 < 2 * k
    · rw [oMix_lt d L fx h, oMix_lt d L fx (by omega)]
    · rw [oMix_ge d L fx h, oMix_ge d L fx (by omega)]
theorem oMix_zero : bigSep (oSet 0) (oMix d L fx 0) = bigSep (Finset.range 18) (oP (F := F) d L) := by
  rw [oSet_zero]; exact bigSep_congr fun n _ => oMix_ge d L fx (by omega)
theorem oMix_end : bigSep (oSet 8) (oMix d L fx 8) = bigSep (oSet 8) (oQ d L fx) :=
  bigSep_congr fun n hn => by
    have hn' : n < 18 ∧ n + 2 ≠ 16 ∧ n + 2 ≠ 17 := by simpa only [oSet, Finset.mem_filter, Finset.mem_range] using hn
    by_cases h : n + 2 < 2 * 8
    · exact oMix_lt d L fx h
    · rw [oMix_ge d L fx h, oP_neg (F := F) d L (by unfold valid; omega), oQ_neg d L fx (by unfold valid; omega)]

/-- The lane-copy loops: before trip `j` the first 16·j elements of the flat staging buffer are the staging row's. -/
def laneV0 (g4 : Buf (Elt F) ((a4).view.loc (thr d L))) (j : ℕ) (_ : PUnit) : sProp 𝕄 :=
  iprop(((a4).view.loc (thr d L) ↦{fullShare} g4) ∗ (∃ g, ((a6).view.loc (thr d L) ↦{fullShare} g) ∗ ⌜Lanes d L a4 a6 g4 g j⌝))
def laneV1 (g5 : Buf (Elt F) ((a5).view.loc (thr d L))) (j : ℕ) (_ : PUnit) : sProp 𝕄 :=
  iprop(((a5).view.loc (thr d L) ↦{fullShare} g5) ∗ (∃ g, ((a7).view.loc (thr d L) ↦{fullShare} g) ∗ ⌜Lanes d L a5 a7 g5 g j⌝))

def invV (t : ℕ) (_ : PUnit) : sProp 𝕄 :=
  iprop(Transfers.MayWaits (thr d L) (none : HIx 22) O
    ∗ (∃ W', ⌜∀ p ∈ W', p ∈ W ∨ p.2 = none⌝ ∗ owes (thr d L) O W')
    ∗ bigSep (xSet t) (xP d L fx) ∗ bigSep (oSet t) (oMix d L fx t)
    ∗ inSlotV d L fx a4 cc14_scratch4.sem (2 * t) ∗ outSlotV d L fx a6 cc14_scratch6.sem (2 * t)
    ∗ inSlotV d L fx a5 cc14_scratch5.sem (2 * t + 1) ∗ outSlotV d L fx a7 cc14_scratch7.sem (2 * t + 1))

/-- After the last trip nothing of the argument row is in a slot: the tile holds all its pieces. -/
theorem xRange_end : bigSep (xSet 8) (xP d L fx) ⊢ bigSep (Finset.range 18) (xP d L fx) := by
  rw [two_out (s := Finset.range 18) (a := 16) (b := 17) (by decide) (by decide) (by decide),
    show ((Finset.range 18).erase 16).erase 17 = xSet 8 by decide]
  iintro H
  isplitr; · iapply (Entails.of_eq (xP_neg d L fx (n := 16) (by unfold valid; omega)).symm); iempintro
  isplitr; · iapply (Entails.of_eq (xP_neg d L fx (n := 17) (by unfold valid; omega)).symm); iempintro
  iexact H
omit [FloatOps F] in
theorem oRange_end (Φ : ℕ → sProp 𝕄) : bigSep (Finset.range 18) Φ = iprop(Φ 14 ∗ Φ 15 ∗ bigSep (oSet 8) Φ) := by
  rw [two_out (s := Finset.range 18) (a := 14) (b := 15) (by decide) (by decide) (by decide),
    show ((Finset.range 18).erase 14).erase 15 = oSet 8 by decide]

/-- What the run starts from and ends with, beside an untouched rest `R`. -/
def runPre (R : sProp 𝕄) : sProp 𝕄 :=
    iprop(Transfers.MayWaits (thr d L) (none : HIx 22) O ∗ owes (thr d L) O W
        ∗ bigSep (Finset.range 18) (xP d L fx) ∗ bigSep (Finset.range 18) (oP (F := F) d L)
        ∗ (∃ g, (a4).view.loc (thr d L) ↦{fullShare} g) ∗ (∃ g, (a5).view.loc (thr d L) ↦{fullShare} g)
        ∗ (∃ g, (a6).view.loc (thr d L) ↦{fullShare} g) ∗ (∃ g, (a7).view.loc (thr d L) ↦{fullShare} g)
        ∗ semVal (thr d L, SemLoc.dma cc14_scratch4.sem) 0 ∗ semVal (thr d L, SemLoc.dma cc14_scratch5.sem) 0
        ∗ semVal (thr d L, SemLoc.dma cc14_scratch6.sem) 0 ∗ semVal (thr d L, SemLoc.dma cc14_scratch7.sem) 0 ∗ R)
def runPost (R : sProp 𝕄) : sProp 𝕄 :=
    iprop(bigSep (Finset.range 18) (xP d L fx) ∗ bigSep (Finset.range 18) (oQ d L fx)
            ∗ (∃ g, (a4).view.loc (thr d L) ↦{fullShare} g) ∗ (∃ g, (a5).view.loc (thr d L) ↦{fullShare} g)
            ∗ (∃ g, (a6).view.loc (thr d L) ↦{fullShare} g) ∗ (∃ g, (a7).view.loc (thr d L) ↦{fullShare} g)
            ∗ semVal (thr d L, SemLoc.dma cc14_scratch4.sem) 0 ∗ semVal (thr d L, SemLoc.dma cc14_scratch5.sem) 0
            ∗ semVal (thr d L, SemLoc.dma cc14_scratch6.sem) 0 ∗ semVal (thr d L, SemLoc.dma cc14_scratch7.sem) 0
            ∗ (∃ W', ⌜∀ p ∈ W', p ∈ W ∨ p.2 = none⌝ ∗ owes (thr d L) O W') ∗ R)

set_option maxHeartbeats 16000000 in
/-- The task's run: from its pieces of the argument row and of the result, the four staging buffers and the four
    semaphores at zero, to the same with every piece of the result holding the row's elements. -/
theorem tile_run (R : sProp 𝕄) :
    runPre d L O W fx R
      ⊢ wp frame (wpE (defs₀ (F := F)) 𝒱₀ (thr d L) none) Set.univ
          (cc14_sc_group L xtW (Memref.isWhole_whole _) oW (Memref.isWhole_whole _) a4 (Memref.isWhole_whole _) a5 (Memref.isWhole_whole _)
            a6 (Memref.isWhole_whole _) a7 (Memref.isWhole_whole _) cc14_scratch4 cc14_scratch5 cc14_scratch6 cc14_scratch7)
          fun _ => runPost d L O W fx R := by
  unfold runPre runPost
  have v0 : valid L 0 := Or.inl (by omega)
  have v1 : valid L 1 := Or.inl (by omega)
  have k14_h7 : k14_cond7 L = 1#1 := cond7_iff L
  iintro ⟨#Hmw, HO, HX, HOut, ⟨%g4, H4⟩, ⟨%g5, H5⟩, ⟨%g6, H6⟩, ⟨%g7, H7⟩, Hs8, Hs9, Hs10, Hs11, HR⟩
  ihave HX := (Entails.of_eq (xRange_split d L fx v0 v1)) $$ HX
  icases HX with ⟨X0, X1, HX⟩
  ihave X0 := (Entails.of_eq (in_congr d L (off_in0 L v0).symm (in_inb L _) (k14_off1_inb L 0) fx)) $$ X0
  ihave X1 := (Entails.of_eq (in_congr d L (off_in1 L v1).symm (in_inb L _) (k14_off1_inb L 1) fx)) $$ X1
  sl_unfold [cc14_sc_group]
  sl_exec
  ihave S8 := (fl_inV d L fx (off_in0 L v0) (k14_off1_inb L 0) v0 a4 cc14_scratch4.sem) $$ [Hs8]
  · iexists _, _
    isplitr
    rotate_left
    · iexact Hs8
    ipureintro; intro y; rfl
  ihave S9 := (fl_inV d L fx (off_in1 L v1) (k14_off1_inb L 1) v1 a5 cc14_scratch5.sem) $$ [Hs9]
  · iexists _, _
    isplitr
    rotate_left
    · iexact Hs9
    ipureintro; intro y; rfl
  sl_for (invV d L O W fx) $$ [HO HX HOut S8 S9 H6 H7 Hs10 Hs11]
  case region =>
    intro (k : Fin k14_t1_loop.trips) acc
    have hk : k.val < 8 := Nat.lt_of_lt_of_eq k.isLt trips1
    unfold invV
    iintro ⟨#Hmw, ⟨%W', %hW', HO⟩, HX, HOut, S8, S10, S9, S11⟩
    by_cases hk1 : 1 ≤ k.val
    · by_cases v3 : valid L (2 * k.val + 3)
      · -- the generic trip: both drains, both pieces worked, both next fetches issued
        have hk6 : k.val ≤ 6 := by unfold valid at v3; omega
        have k14_h1 : k14_cond1 k = 1#1 := (cond1_iff k).mpr (by omega)
        have k14_h2 : k14_cond2 L k = 1#1 := cond2_iff L k
        have k14_h3 : k14_cond3 L k = 1#1 := (cond3_iff L k).mpr (by omega)
        have k14_h4 : k14_cond4 k = 1#1 := (cond4_iff k).mpr (by omega)
        have k14_h5 : k14_cond5 L k = 1#1 := (cond5_iff L k).mpr (by first | (unfold valid big at *; omega) | (unfold big at *; omega) | omega)
        have k14_h6 : k14_cond6 L k = 1#1 := (cond6_iff L k).mpr (by first | (unfold valid big at *; omega) | (unfold big at *; omega) | omega)
        have v0 : valid L (2 * k.val) := by unfold valid big at *; omega
        have v1 : valid L (2 * k.val + 1) := by unfold valid big at *; omega
        have v2 : valid L (2 * k.val + 2) := by unfold valid big at *; omega
        have v3' : valid L (2 * k.val + 3) := by unfold valid big at *; omega
        have hm0 : 2 ≤ 2 * k.val ∧ valid L (2 * k.val - 2) := ⟨by omega, by unfold valid big at *; omega⟩
        have hm1 : 2 ≤ 2 * k.val + 1 ∧ valid L (2 * k.val + 1 - 2) := ⟨by omega, by unfold valid big at *; omega⟩
        ihave S8 := (Entails.of_eq (inSlotV_pos d L fx v0)) $$ S8
        icases S8 with ⟨%g4, %hin4, F8⟩
        ihave S9 := (Entails.of_eq (inSlotV_pos d L fx v1)) $$ S9
        icases S9 with ⟨%g5, %hin5, F9⟩
        ihave S10 := (Entails.of_eq (outSlotV_pos d L fx hm0)) $$ S10
        icases S10 with ⟨%g6, F10, R6⟩
        ihave S11 := (Entails.of_eq (outSlotV_pos d L fx hm1)) $$ S11
        icases S11 with ⟨%g7, F11, R7⟩
        ihave HX := (Entails.of_eq (xSet_out (xP d L fx) k.val hk)) $$ HX
        icases HX with ⟨X2, X3, HX⟩
        ihave X2 := (Entails.of_eq (xP_pos d L fx v2)) $$ X2
        ihave X2 := (Entails.of_eq (in_congr d L (off_6 L k v2).symm (in_inb L _) (k14_off6_inb L k k14_h3) fx)) $$ X2
        ihave X3 := (Entails.of_eq (xP_pos d L fx v3')) $$ X3
        ihave X3 := (Entails.of_eq (in_congr d L (off_11 L k v3').symm (in_inb L _) (k14_off11_inb L k k14_h6) fx)) $$ X3
        ihave HOut := (Entails.of_eq (oSet_out (oMix d L fx k.val) k.val hk)) $$ HOut
        icases HOut with ⟨Y0, Y1, HOut⟩
        ihave Y0 := (Entails.of_eq ((oMix_ge d L fx (t := k.val) (n := 2 * k.val) (by omega)).trans (oP_pos (F := F) d L v0))) $$ Y0
        icases Y0 with ⟨%f0, Y0⟩
        ihave Y0 := (Entails.of_eq (out_congr d L (off_5 L k v0).symm (out_inb L _) (k14_off5_inb L k k14_h2) f0)) $$ Y0
        ihave Y1 := (Entails.of_eq ((oMix_ge d L fx (t := k.val) (n := 2 * k.val + 1) (by omega)).trans (oP_pos (F := F) d L v1))) $$ Y1
        icases Y1 with ⟨%f1, Y1⟩
        ihave Y1 := (Entails.of_eq (out_congr d L (off_10 L k v1).symm (out_inb L _) (k14_off10_inb L k k14_h5) f1)) $$ Y1
        sl_exec
        sl_for (laneV0 d L g4) $$ [F8_dst R6]
        case region =>
          intro (j : Fin k14_t2_loop.trips) _
          unfold laneV0
          iintro ⟨HA, %g, HB, %hl⟩
          sl_exec
          sl_step
          isplitl [HA]; · iexact HA
          iexists _; isplitl [HB]; · iexact HB
          ipureintro; exact lanes_step d L a4 a6 g4 g j _ _ hl
        · unfold laneV0
          isplitl [F8_dst]; · iexact F8_dst
          iexists _; isplitl [R6]; · iexact R6
          ipureintro; exact lanes_zero d L a4 a6 g4 _
        iintro %_ HI
        unfold laneV0
        icases HI with ⟨H4, %g6', H6, %hl6⟩
        have hl6 : Lanes d L a4 a6 g4 g6' 200 := Eq.mp (congrArg (Lanes d L a4 a6 g4 g6') trips2) hl6
        sl_exec
        sl_for (laneV1 d L g5) $$ [F9_dst R7]
        case region =>
          intro (j : Fin k14_t3_loop.trips) _
          unfold laneV1
          iintro ⟨HA, %g, HB, %hl⟩
          sl_exec
          sl_step
          isplitl [HA]; · iexact HA
          iexists _; isplitl [HB]; · iexact HB
          ipureintro; exact lanes_step' d L a5 a7 g5 g j _ _ hl
        · unfold laneV1
          isplitl [F9_dst]; · iexact F9_dst
          iexists _; isplitl [R7]; · iexact R7
          ipureintro; exact lanes_zero d L a5 a7 g5 _
        iintro %_ HI
        unfold laneV1
        icases HI with ⟨H5, %g7', H7, %hl7⟩
        have hl7 : Lanes d L a5 a7 g5 g7' 200 := Eq.mp (congrArg (Lanes d L a5 a7 g5 g7') trips3) hl7
        sl_exec
        sl_step
        isplitr; · iexact Hmw
        isplitl [HO]
        · iexists _; isplitr
          rotate_left
          · iexact HO
          ipureintro; intro p hp
          rcases Finset.mem_insert.mp hp with rfl | hp
          · exact .inr rfl
          rcases Finset.mem_insert.mp hp with rfl | hp
          · exact .inr rfl
          rcases Finset.mem_insert.mp hp with rfl | hp
          · exact .inr rfl
          rcases Finset.mem_insert.mp hp with rfl | hp
          · exact .inr rfl
          exact hW' p hp
        isplitl [HX F8_src F9_src]
        · iapply (Entails.of_eq (xSet_in (xP d L fx) k.val hk).symm)
          isplitl [F8_src]; · iapply (Entails.of_eq (xP_pos d L fx v0).symm); iexact F8_src
          isplitl [F9_src]; · iapply (Entails.of_eq (xP_pos d L fx v1).symm); iexact F9_src
          iexact HX
        isplitl [HOut F10_dst F11_dst]
        · iapply (Entails.of_eq (oSet_in (oMix d L fx (k.val + 1)) k.val hk (by omega)).symm)
          isplitl [F10_dst]; · iapply (Entails.of_eq ((oMix_lt d L fx (t := k.val + 1) (n := 2 * k.val - 2) (by omega)).trans (oQ_pos d L fx hm0.2)).symm); iexact F10_dst
          isplitl [F11_dst]
          · iapply (Entails.of_eq ((oMix_lt d L fx (t := k.val + 1) (n := 2 * k.val - 1) (by omega)).trans (oQ_pos d L fx (n := 2 * k.val - 1) (by have := hm1.2; rwa [show 2 * k.val + 1 - 2 = 2 * k.val - 1 by omega] at this))).symm)
            iapply (Entails.of_eq (congrArg (oqPiece d L fx) (show 2 * k.val + 1 - 2 = 2 * k.val - 1 by omega))); iexact F11_dst
          iapply (Entails.of_eq (oMix_core d L fx k.val)); iexact HOut
        isplitl [F8]
        · iapply (Entails.of_eq (congrArg (inSlotV d L fx a4 cc14_scratch4.sem) (show 2 * k.val + 2 = 2 * (k.val + 1) by ring)))
          iapply (fl_inV d L fx (off_6 L k v2) (k14_off6_inb L k k14_h3) v2 a4 cc14_scratch4.sem); iexists _, _
          isplitr
          rotate_left
          · iexact F8
          ipureintro; intro y; rfl
        isplitl [F10 H6]
        · iapply (Entails.of_eq (congrArg (outSlotV d L fx a6 cc14_scratch6.sem) (show 2 * k.val + 2 = 2 * (k.val + 1) by ring)))
          iapply (fl_outV d L fx (off_5 L k v0) (k14_off5_inb L k k14_h2) v0 a4 a6 cc14_scratch6.sem f0 g4 g6' hl6 hin4); iexists _
          isplitr
          rotate_left
          · isplitl [F10]; · iexact F10
            iexact H6
          ipureintro; intro y; rfl
        isplitl [F9]
        · iapply (Entails.of_eq (congrArg (inSlotV d L fx a5 cc14_scratch5.sem) (show 2 * k.val + 3 = 2 * (k.val + 1) + 1 by ring)))
          iapply (fl_inV d L fx (off_11 L k v3') (k14_off11_inb L k k14_h6) v3' a5 cc14_scratch5.sem); iexists _, _
          isplitr
          rotate_left
          · iexact F9
          ipureintro; intro y; rfl
        · iapply (Entails.of_eq (congrArg (outSlotV d L fx a7 cc14_scratch7.sem) (show 2 * k.val + 1 + 2 = 2 * (k.val + 1) + 1 by ring)))
          iapply (fl_outV d L fx (off_10 L k v1) (k14_off10_inb L k k14_h5) v1 a5 a7 cc14_scratch7.sem f1 g5 g7' hl7 hin5); iexists _
          isplitr
          rotate_left
          · isplitl [F11]; · iexact F11
            iexact H7
          ipureintro; intro y; rfl
      · by_cases h6 : k.val = 6
        · have hb : ¬ big L := fun hb => v3 (Or.inr ⟨by omega, hb⟩)
          -- trip 6 of a tile with fifteen pieces: no sixteenth piece to fetch
          have k14_h1 : k14_cond1 k = 1#1 := (cond1_iff k).mpr (by omega)
          have k14_h2 : k14_cond2 L k = 1#1 := cond2_iff L k
          have k14_h3 : k14_cond3 L k = 1#1 := (cond3_iff L k).mpr (by omega)
          have k14_h4 : k14_cond4 k = 1#1 := (cond4_iff k).mpr (by omega)
          have k14_h5 : k14_cond5 L k = 1#1 := (cond5_iff L k).mpr (by first | (unfold valid big at *; omega) | (unfold big at *; omega) | omega)
          have k14_h6 : ¬ k14_cond6 L k = 1#1 := fun h => absurd ((cond6_iff L k).mp h) (by first | (unfold valid big at *; omega) | (unfold big at *; omega) | omega)
          have v0 : valid L (2 * k.val) := by unfold valid big at *; omega
          have v1 : valid L (2 * k.val + 1) := by unfold valid big at *; omega
          have v2 : valid L (2 * k.val + 2) := by unfold valid big at *; omega
          have v3' : ¬ valid L (2 * k.val + 3) := by unfold valid big at *; omega
          have hm0 : 2 ≤ 2 * k.val ∧ valid L (2 * k.val - 2) := ⟨by omega, by unfold valid big at *; omega⟩
          have hm1 : 2 ≤ 2 * k.val + 1 ∧ valid L (2 * k.val + 1 - 2) := ⟨by omega, by unfold valid big at *; omega⟩
          ihave S8 := (Entails.of_eq (inSlotV_pos d L fx v0)) $$ S8
          icases S8 with ⟨%g4, %hin4, F8⟩
          ihave S9 := (Entails.of_eq (inSlotV_pos d L fx v1)) $$ S9
          icases S9 with ⟨%g5, %hin5, F9⟩
          ihave S10 := (Entails.of_eq (outSlotV_pos d L fx hm0)) $$ S10
          icases S10 with ⟨%g6, F10, R6⟩
          ihave S11 := (Entails.of_eq (outSlotV_pos d L fx hm1)) $$ S11
          icases S11 with ⟨%g7, F11, R7⟩
          ihave HX := (Entails.of_eq (xSet_out (xP d L fx) k.val hk)) $$ HX
          icases HX with ⟨X2, -, HX⟩
          ihave X2 := (Entails.of_eq (xP_pos d L fx v2)) $$ X2
          ihave X2 := (Entails.of_eq (in_congr d L (off_6 L k v2).symm (in_inb L _) (k14_off6_inb L k k14_h3) fx)) $$ X2
          ihave HOut := (Entails.of_eq (oSet_out (oMix d L fx k.val) k.val hk)) $$ HOut
          icases HOut with ⟨Y0, Y1, HOut⟩
          ihave Y0 := (Entails.of_eq ((oMix_ge d L fx (t := k.val) (n := 2 * k.val) (by omega)).trans (oP_pos (F := F) d L v0))) $$ Y0
          icases Y0 with ⟨%f0, Y0⟩
          ihave Y0 := (Entails.of_eq (out_congr d L (off_5 L k v0).symm (out_inb L _) (k14_off5_inb L k k14_h2) f0)) $$ Y0
          ihave Y1 := (Entails.of_eq ((oMix_ge d L fx (t := k.val) (n := 2 * k.val + 1) (by omega)).trans (oP_pos (F := F) d L v1))) $$ Y1
          icases Y1 with ⟨%f1, Y1⟩
          ihave Y1 := (Entails.of_eq (out_congr d L (off_10 L k v1).symm (out_inb L _) (k14_off10_inb L k k14_h5) f1)) $$ Y1
          sl_exec
          sl_for (laneV0 d L g4) $$ [F8_dst R6]
          case region =>
            intro (j : Fin k14_t2_loop.trips) _
            unfold laneV0
            iintro ⟨HA, %g, HB, %hl⟩
            sl_exec
            sl_step
            isplitl [HA]; · iexact HA
            iexists _; isplitl [HB]; · iexact HB
            ipureintro; exact lanes_step d L a4 a6 g4 g j _ _ hl
          · unfold laneV0
            isplitl [F8_dst]; · iexact F8_dst
            iexists _; isplitl [R6]; · iexact R6
            ipureintro; exact lanes_zero d L a4 a6 g4 _
          iintro %_ HI
          unfold laneV0
          icases HI with ⟨H4, %g6', H6, %hl6⟩
          have hl6 : Lanes d L a4 a6 g4 g6' 200 := Eq.mp (congrArg (Lanes d L a4 a6 g4 g6') trips2) hl6
          sl_exec
          sl_for (laneV1 d L g5) $$ [F9_dst R7]
          case region =>
            intro (j : Fin k14_t3_loop.trips) _
            unfold laneV1
            iintro ⟨HA, %g, HB, %hl⟩
            sl_exec
            sl_step
            isplitl [HA]; · iexact HA
            iexists _; isplitl [HB]; · iexact HB
            ipureintro; exact lanes_step' d L a5 a7 g5 g j _ _ hl
          · unfold laneV1
            isplitl [F9_dst]; · iexact F9_dst
            iexists _; isplitl [R7]; · iexact R7
            ipureintro; exact lanes_zero d L a5 a7 g5 _
          iintro %_ HI
          unfold laneV1
          icases HI with ⟨H5, %g7', H7, %hl7⟩
          have hl7 : Lanes d L a5 a7 g5 g7' 200 := Eq.mp (congrArg (Lanes d L a5 a7 g5 g7') trips3) hl7
          sl_exec
          sl_step
          isplitr; · iexact Hmw
          isplitl [HO]
          · iexists _; isplitr
            rotate_left
            · iexact HO
            ipureintro; intro p hp
            rcases Finset.mem_insert.mp hp with rfl | hp
            · exact .inr rfl
            rcases Finset.mem_insert.mp hp with rfl | hp
            · exact .inr rfl
            rcases Finset.mem_insert.mp hp with rfl | hp
            · exact .inr rfl
            rcases Finset.mem_insert.mp hp with rfl | hp
            · exact .inr rfl
            exact hW' p hp
          isplitl [HX F8_src F9_src]
          · iapply (Entails.of_eq (xSet_in (xP d L fx) k.val hk).symm)
            isplitl [F8_src]; · iapply (Entails.of_eq (xP_pos d L fx v0).symm); iexact F8_src
            isplitl [F9_src]; · iapply (Entails.of_eq (xP_pos d L fx v1).symm); iexact F9_src
            iexact HX
          isplitl [HOut F10_dst F11_dst]
          · iapply (Entails.of_eq (oSet_in (oMix d L fx (k.val + 1)) k.val hk (by omega)).symm)
            isplitl [F10_dst]; · iapply (Entails.of_eq ((oMix_lt d L fx (t := k.val + 1) (n := 2 * k.val - 2) (by omega)).trans (oQ_pos d L fx hm0.2)).symm); iexact F10_dst
            isplitl [F11_dst]
            · iapply (Entails.of_eq ((oMix_lt d L fx (t := k.val + 1) (n := 2 * k.val - 1) (by omega)).trans (oQ_pos d L fx (n := 2 * k.val - 1) (by have := hm1.2; rwa [show 2 * k.val + 1 - 2 = 2 * k.val - 1 by omega] at this))).symm)
              iapply (Entails.of_eq (congrArg (oqPiece d L fx) (show 2 * k.val + 1 - 2 = 2 * k.val - 1 by omega))); iexact F11_dst
            iapply (Entails.of_eq (oMix_core d L fx k.val)); iexact HOut
          isplitl [F8]
          · iapply (Entails.of_eq (congrArg (inSlotV d L fx a4 cc14_scratch4.sem) (show 2 * k.val + 2 = 2 * (k.val + 1) by ring)))
            iapply (fl_inV d L fx (off_6 L k v2) (k14_off6_inb L k k14_h3) v2 a4 cc14_scratch4.sem); iexists _, _
            isplitr
            rotate_left
            · iexact F8
            ipureintro; intro y; rfl
          isplitl [F10 H6]
          · iapply (Entails.of_eq (congrArg (outSlotV d L fx a6 cc14_scratch6.sem) (show 2 * k.val + 2 = 2 * (k.val + 1) by ring)))
            iapply (fl_outV d L fx (off_5 L k v0) (k14_off5_inb L k k14_h2) v0 a4 a6 cc14_scratch6.sem f0 g4 g6' hl6 hin4); iexists _
            isplitr
            rotate_left
            · isplitl [F10]; · iexact F10
              iexact H6
            ipureintro; intro y; rfl
          isplitl [H5 F9]
          · iapply (Entails.of_eq (congrArg (inSlotV d L fx a5 cc14_scratch5.sem) (show 2 * k.val + 3 = 2 * (k.val + 1) + 1 by ring)))
            iapply (Entails.of_eq (inSlotV_neg d L fx v3').symm)
            isplitl [H5]; · iexists _; iexact H5
            iexact F9
          · iapply (Entails.of_eq (congrArg (outSlotV d L fx a7 cc14_scratch7.sem) (show 2 * k.val + 1 + 2 = 2 * (k.val + 1) + 1 by ring)))
            iapply (fl_outV d L fx (off_10 L k v1) (k14_off10_inb L k k14_h5) v1 a5 a7 cc14_scratch7.sem f1 g5 g7' hl7 hin5); iexists _
            isplitr
            rotate_left
            · isplitl [F11]; · iexact F11
              iexact H7
            ipureintro; intro y; rfl
        · have h7 : k.val = 7 := by unfold valid at v3; omega
          by_cases hb : big L
          · -- the last trip of a tile with sixteen pieces: nothing more to fetch
            have k14_h1 : k14_cond1 k = 1#1 := (cond1_iff k).mpr (by omega)
            have k14_h2 : k14_cond2 L k = 1#1 := cond2_iff L k
            have k14_h3 : ¬ k14_cond3 L k = 1#1 := fun h => absurd ((cond3_iff L k).mp h) (by omega)
            have k14_h4 : k14_cond4 k = 1#1 := (cond4_iff k).mpr (by omega)
            have k14_h5 : k14_cond5 L k = 1#1 := (cond5_iff L k).mpr (by first | (unfold valid big at *; omega) | (unfold big at *; omega) | omega)
            have k14_h6 : ¬ k14_cond6 L k = 1#1 := fun h => absurd ((cond6_iff L k).mp h) (by first | (unfold valid big at *; omega) | (unfold big at *; omega) | omega)
            have v0 : valid L (2 * k.val) := by unfold valid big at *; omega
            have v1 : valid L (2 * k.val + 1) := by unfold valid big at *; omega
            have v2 : ¬ valid L (2 * k.val + 2) := by unfold valid big at *; omega
            have v3' : ¬ valid L (2 * k.val + 3) := by unfold valid big at *; omega
            have hm0 : 2 ≤ 2 * k.val ∧ valid L (2 * k.val - 2) := ⟨by omega, by unfold valid big at *; omega⟩
            have hm1 : 2 ≤ 2 * k.val + 1 ∧ valid L (2 * k.val + 1 - 2) := ⟨by omega, by unfold valid big at *; omega⟩
            ihave S8 := (Entails.of_eq (inSlotV_pos d L fx v0)) $$ S8
            icases S8 with ⟨%g4, %hin4, F8⟩
            ihave S9 := (Entails.of_eq (inSlotV_pos d L fx v1)) $$ S9
            icases S9 with ⟨%g5, %hin5, F9⟩
            ihave S10 := (Entails.of_eq (outSlotV_pos d L fx hm0)) $$ S10
            icases S10 with ⟨%g6, F10, R6⟩
            ihave S11 := (Entails.of_eq (outSlotV_pos d L fx hm1)) $$ S11
            icases S11 with ⟨%g7, F11, R7⟩
            ihave HX := (Entails.of_eq (xSet_out (xP d L fx) k.val hk)) $$ HX
            icases HX with ⟨-, -, HX⟩
            ihave HOut := (Entails.of_eq (oSet_out (oMix d L fx k.val) k.val hk)) $$ HOut
            icases HOut with ⟨Y0, Y1, HOut⟩
            ihave Y0 := (Entails.of_eq ((oMix_ge d L fx (t := k.val) (n := 2 * k.val) (by omega)).trans (oP_pos (F := F) d L v0))) $$ Y0
            icases Y0 with ⟨%f0, Y0⟩
            ihave Y0 := (Entails.of_eq (out_congr d L (off_5 L k v0).symm (out_inb L _) (k14_off5_inb L k k14_h2) f0)) $$ Y0
            ihave Y1 := (Entails.of_eq ((oMix_ge d L fx (t := k.val) (n := 2 * k.val + 1) (by omega)).trans (oP_pos (F := F) d L v1))) $$ Y1
            icases Y1 with ⟨%f1, Y1⟩
            ihave Y1 := (Entails.of_eq (out_congr d L (off_10 L k v1).symm (out_inb L _) (k14_off10_inb L k k14_h5) f1)) $$ Y1
            sl_exec
            sl_for (laneV0 d L g4) $$ [F8_dst R6]
            case region =>
              intro (j : Fin k14_t2_loop.trips) _
              unfold laneV0
              iintro ⟨HA, %g, HB, %hl⟩
              sl_exec
              sl_step
              isplitl [HA]; · iexact HA
              iexists _; isplitl [HB]; · iexact HB
              ipureintro; exact lanes_step d L a4 a6 g4 g j _ _ hl
            · unfold laneV0
              isplitl [F8_dst]; · iexact F8_dst
              iexists _; isplitl [R6]; · iexact R6
              ipureintro; exact lanes_zero d L a4 a6 g4 _
            iintro %_ HI
            unfold laneV0
            icases HI with ⟨H4, %g6', H6, %hl6⟩
            have hl6 : Lanes d L a4 a6 g4 g6' 200 := Eq.mp (congrArg (Lanes d L a4 a6 g4 g6') trips2) hl6
            sl_exec
            sl_for (laneV1 d L g5) $$ [F9_dst R7]
            case region =>
              intro (j : Fin k14_t3_loop.trips) _
              unfold laneV1
              iintro ⟨HA, %g, HB, %hl⟩
              sl_exec
              sl_step
              isplitl [HA]; · iexact HA
              iexists _; isplitl [HB]; · iexact HB
              ipureintro; exact lanes_step' d L a5 a7 g5 g j _ _ hl
            · unfold laneV1
              isplitl [F9_dst]; · iexact F9_dst
              iexists _; isplitl [R7]; · iexact R7
              ipureintro; exact lanes_zero d L a5 a7 g5 _
            iintro %_ HI
            unfold laneV1
            icases HI with ⟨H5, %g7', H7, %hl7⟩
            have hl7 : Lanes d L a5 a7 g5 g7' 200 := Eq.mp (congrArg (Lanes d L a5 a7 g5 g7') trips3) hl7
            sl_exec
            sl_step
            isplitr; · iexact Hmw
            isplitl [HO]
            · iexists _; isplitr
              rotate_left
              · iexact HO
              ipureintro; intro p hp
              rcases Finset.mem_insert.mp hp with rfl | hp
              · exact .inr rfl
              rcases Finset.mem_insert.mp hp with rfl | hp
              · exact .inr rfl
              rcases Finset.mem_insert.mp hp with rfl | hp
              · exact .inr rfl
              rcases Finset.mem_insert.mp hp with rfl | hp
              · exact .inr rfl
              exact hW' p hp
            isplitl [HX F8_src F9_src]
            · iapply (Entails.of_eq (xSet_in (xP d L fx) k.val hk).symm)
              isplitl [F8_src]; · iapply (Entails.of_eq (xP_pos d L fx v0).symm); iexact F8_src
              isplitl [F9_src]; · iapply (Entails.of_eq (xP_pos d L fx v1).symm); iexact F9_src
              iexact HX
            isplitl [HOut F10_dst F11_dst]
            · iapply (Entails.of_eq (oSet_in (oMix d L fx (k.val + 1)) k.val hk (by omega)).symm)
              isplitl [F10_dst]; · iapply (Entails.of_eq ((oMix_lt d L fx (t := k.val + 1) (n := 2 * k.val - 2) (by omega)).trans (oQ_pos d L fx hm0.2)).symm); iexact F10_dst
              isplitl [F11_dst]
              · iapply (Entails.of_eq ((oMix_lt d L fx (t := k.val + 1) (n := 2 * k.val - 1) (by omega)).trans (oQ_pos d L fx (n := 2 * k.val - 1) (by have := hm1.2; rwa [show 2 * k.val + 1 - 2 = 2 * k.val - 1 by omega] at this))).symm)
                iapply (Entails.of_eq (congrArg (oqPiece d L fx) (show 2 * k.val + 1 - 2 = 2 * k.val - 1 by omega))); iexact F11_dst
              iapply (Entails.of_eq (oMix_core d L fx k.val)); iexact HOut
            isplitl [H4 F8]
            · iapply (Entails.of_eq (congrArg (inSlotV d L fx a4 cc14_scratch4.sem) (show 2 * k.val + 2 = 2 * (k.val + 1) by ring)))
              iapply (Entails.of_eq (inSlotV_neg d L fx v2).symm)
              isplitl [H4]; · iexists _; iexact H4
              iexact F8
            isplitl [F10 H6]
            · iapply (Entails.of_eq (congrArg (outSlotV d L fx a6 cc14_scratch6.sem) (show 2 * k.val + 2 = 2 * (k.val + 1) by ring)))
              iapply (fl_outV d L fx (off_5 L k v0) (k14_off5_inb L k k14_h2) v0 a4 a6 cc14_scratch6.sem f0 g4 g6' hl6 hin4); iexists _
              isplitr
              rotate_left
              · isplitl [F10]; · iexact F10
                iexact H6
              ipureintro; intro y; rfl
            isplitl [H5 F9]
            · iapply (Entails.of_eq (congrArg (inSlotV d L fx a5 cc14_scratch5.sem) (show 2 * k.val + 3 = 2 * (k.val + 1) + 1 by ring)))
              iapply (Entails.of_eq (inSlotV_neg d L fx v3').symm)
              isplitl [H5]; · iexists _; iexact H5
              iexact F9
            · iapply (Entails.of_eq (congrArg (outSlotV d L fx a7 cc14_scratch7.sem) (show 2 * k.val + 1 + 2 = 2 * (k.val + 1) + 1 by ring)))
              iapply (fl_outV d L fx (off_10 L k v1) (k14_off10_inb L k k14_h5) v1 a5 a7 cc14_scratch7.sem f1 g5 g7' hl7 hin5); iexists _
              isplitr
              rotate_left
              · isplitl [F11]; · iexact F11
                iexact H7
              ipureintro; intro y; rfl
          · -- the last trip of a tile with fifteen pieces: the second slot only drains
            have k14_h1 : k14_cond1 k = 1#1 := (cond1_iff k).mpr (by omega)
            have k14_h2 : k14_cond2 L k = 1#1 := cond2_iff L k
            have k14_h3 : ¬ k14_cond3 L k = 1#1 := fun h => absurd ((cond3_iff L k).mp h) (by omega)
            have k14_h4 : k14_cond4 k = 1#1 := (cond4_iff k).mpr (by omega)
            have k14_h5 : ¬ k14_cond5 L k = 1#1 := fun h => absurd ((cond5_iff L k).mp h) (by first | (unfold valid big at *; omega) | (unfold big at *; omega) | omega)
            have k14_h6 : ¬ k14_cond6 L k = 1#1 := fun h => absurd ((cond6_iff L k).mp h) (by first | (unfold valid big at *; omega) | (unfold big at *; omega) | omega)
            have v0 : valid L (2 * k.val) := by unfold valid big at *; omega
            have v1 : ¬ valid L (2 * k.val + 1) := by unfold valid big at *; omega
            have v2 : ¬ valid L (2 * k.val + 2) := by unfold valid big at *; omega
            have v3' : ¬ valid L (2 * k.val + 3) := by unfold valid big at *; omega
            have hm0 : 2 ≤ 2 * k.val ∧ valid L (2 * k.val - 2) := ⟨by omega, by unfold valid big at *; omega⟩
            have hm1 : 2 ≤ 2 * k.val + 1 ∧ valid L (2 * k.val + 1 - 2) := ⟨by omega, by unfold valid big at *; omega⟩
            ihave S8 := (Entails.of_eq (inSlotV_pos d L fx v0)) $$ S8
            icases S8 with ⟨%g4, %hin4, F8⟩
            ihave S9 := (Entails.of_eq (inSlotV_neg d L fx v1)) $$ S9
            icases S9 with ⟨⟨%g5, H5⟩, F9⟩
            ihave S10 := (Entails.of_eq (outSlotV_pos d L fx hm0)) $$ S10
            icases S10 with ⟨%g6, F10, R6⟩
            ihave S11 := (Entails.of_eq (outSlotV_pos d L fx hm1)) $$ S11
            icases S11 with ⟨%g7, F11, R7⟩
            ihave HX := (Entails.of_eq (xSet_out (xP d L fx) k.val hk)) $$ HX
            icases HX with ⟨-, -, HX⟩
            ihave HOut := (Entails.of_eq (oSet_out (oMix d L fx k.val) k.val hk)) $$ HOut
            icases HOut with ⟨Y0, -, HOut⟩
            ihave Y0 := (Entails.of_eq ((oMix_ge d L fx (t := k.val) (n := 2 * k.val) (by omega)).trans (oP_pos (F := F) d L v0))) $$ Y0
            icases Y0 with ⟨%f0, Y0⟩
            ihave Y0 := (Entails.of_eq (out_congr d L (off_5 L k v0).symm (out_inb L _) (k14_off5_inb L k k14_h2) f0)) $$ Y0
            sl_exec
            sl_for (laneV0 d L g4) $$ [F8_dst R6]
            case region =>
              intro (j : Fin k14_t2_loop.trips) _
              unfold laneV0
              iintro ⟨HA, %g, HB, %hl⟩
              sl_exec
              sl_step
              isplitl [HA]; · iexact HA
              iexists _; isplitl [HB]; · iexact HB
              ipureintro; exact lanes_step d L a4 a6 g4 g j _ _ hl
            · unfold laneV0
              isplitl [F8_dst]; · iexact F8_dst
              iexists _; isplitl [R6]; · iexact R6
              ipureintro; exact lanes_zero d L a4 a6 g4 _
            iintro %_ HI
            unfold laneV0
            icases HI with ⟨H4, %g6', H6, %hl6⟩
            have hl6 : Lanes d L a4 a6 g4 g6' 200 := Eq.mp (congrArg (Lanes d L a4 a6 g4 g6') trips2) hl6
            sl_exec
            sl_step
            isplitr; · iexact Hmw
            isplitl [HO]
            · iexists _; isplitr
              rotate_left
              · iexact HO
              ipureintro; intro p hp
              rcases Finset.mem_insert.mp hp with rfl | hp
              · exact .inr rfl
              rcases Finset.mem_insert.mp hp with rfl | hp
              · exact .inr rfl
              rcases Finset.mem_insert.mp hp with rfl | hp
              · exact .inr rfl
              exact hW' p hp
            isplitl [HX F8_src]
            · iapply (Entails.of_eq (xSet_in (xP d L fx) k.val hk).symm)
              isplitl [F8_src]; · iapply (Entails.of_eq (xP_pos d L fx v0).symm); iexact F8_src
              isplitr; · iapply (Entails.of_eq (xP_neg d L fx v1).symm); iempintro
              iexact HX
            isplitl [HOut F10_dst F11_dst]
            · iapply (Entails.of_eq (oSet_in (oMix d L fx (k.val + 1)) k.val hk (by omega)).symm)
              isplitl [F10_dst]; · iapply (Entails.of_eq ((oMix_lt d L fx (t := k.val + 1) (n := 2 * k.val - 2) (by omega)).trans (oQ_pos d L fx hm0.2)).symm); iexact F10_dst
              isplitl [F11_dst]
              · iapply (Entails.of_eq ((oMix_lt d L fx (t := k.val + 1) (n := 2 * k.val - 1) (by omega)).trans (oQ_pos d L fx (n := 2 * k.val - 1) (by have := hm1.2; rwa [show 2 * k.val + 1 - 2 = 2 * k.val - 1 by omega] at this))).symm)
                iapply (Entails.of_eq (congrArg (oqPiece d L fx) (show 2 * k.val + 1 - 2 = 2 * k.val - 1 by omega))); iexact F11_dst
              iapply (Entails.of_eq (oMix_core d L fx k.val)); iexact HOut
            isplitl [H4 F8]
            · iapply (Entails.of_eq (congrArg (inSlotV d L fx a4 cc14_scratch4.sem) (show 2 * k.val + 2 = 2 * (k.val + 1) by ring)))
              iapply (Entails.of_eq (inSlotV_neg d L fx v2).symm)
              isplitl [H4]; · iexists _; iexact H4
              iexact F8
            isplitl [F10 H6]
            · iapply (Entails.of_eq (congrArg (outSlotV d L fx a6 cc14_scratch6.sem) (show 2 * k.val + 2 = 2 * (k.val + 1) by ring)))
              iapply (fl_outV d L fx (off_5 L k v0) (k14_off5_inb L k k14_h2) v0 a4 a6 cc14_scratch6.sem f0 g4 g6' hl6 hin4); iexists _
              isplitr
              rotate_left
              · isplitl [F10]; · iexact F10
                iexact H6
              ipureintro; intro y; rfl
            isplitl [H5 F9]
            · iapply (Entails.of_eq (congrArg (inSlotV d L fx a5 cc14_scratch5.sem) (show 2 * k.val + 3 = 2 * (k.val + 1) + 1 by ring)))
              iapply (Entails.of_eq (inSlotV_neg d L fx v3').symm)
              isplitl [H5]; · iexists _; iexact H5
              iexact F9
            · iapply (Entails.of_eq (outSlotV_neg d L fx (m := 2 * (k.val + 1) + 1) (by intro h; apply v1; have := h.2; rwa [show 2 * (k.val + 1) + 1 - 2 = 2 * k.val + 1 by omega] at this)).symm)
              isplitl [R7]; · iexists _; iexact R7
              iexact F11
    · have hk0 : k.val = 0 := by omega
      -- the first trip: nothing to drain
      have k14_h1 : ¬ k14_cond1 k = 1#1 := fun h => absurd ((cond1_iff k).mp h) (by omega)
      have k14_h2 : k14_cond2 L k = 1#1 := cond2_iff L k
      have k14_h3 : k14_cond3 L k = 1#1 := (cond3_iff L k).mpr (by omega)
      have k14_h4 : ¬ k14_cond4 k = 1#1 := fun h => absurd ((cond4_iff k).mp h) (by omega)
      have k14_h5 : k14_cond5 L k = 1#1 := (cond5_iff L k).mpr (by first | (unfold valid big at *; omega) | (unfold big at *; omega) | omega)
      have k14_h6 : k14_cond6 L k = 1#1 := (cond6_iff L k).mpr (by first | (unfold valid big at *; omega) | (unfold big at *; omega) | omega)
      have v0 : valid L (2 * k.val) := by unfold valid big at *; omega
      have v1 : valid L (2 * k.val + 1) := by unfold valid big at *; omega
      have v2 : valid L (2 * k.val + 2) := by unfold valid big at *; omega
      have v3' : valid L (2 * k.val + 3) := by unfold valid big at *; omega
      have hm0 : ¬ (2 ≤ 2 * k.val ∧ valid L (2 * k.val - 2)) := by omega
      have hm1 : ¬ (2 ≤ 2 * k.val + 1 ∧ valid L (2 * k.val + 1 - 2)) := by omega
      ihave S8 := (Entails.of_eq (inSlotV_pos d L fx v0)) $$ S8
      icases S8 with ⟨%g4, %hin4, F8⟩
      ihave S9 := (Entails.of_eq (inSlotV_pos d L fx v1)) $$ S9
      icases S9 with ⟨%g5, %hin5, F9⟩
      ihave S10 := (Entails.of_eq (outSlotV_neg d L fx hm0)) $$ S10
      icases S10 with ⟨⟨%g6, R6⟩, F10⟩
      ihave S11 := (Entails.of_eq (outSlotV_neg d L fx hm1)) $$ S11
      icases S11 with ⟨⟨%g7, R7⟩, F11⟩
      ihave HX := (Entails.of_eq (xSet_out (xP d L fx) k.val hk)) $$ HX
      icases HX with ⟨X2, X3, HX⟩
      ihave X2 := (Entails.of_eq (xP_pos d L fx v2)) $$ X2
      ihave X2 := (Entails.of_eq (in_congr d L (off_6 L k v2).symm (in_inb L _) (k14_off6_inb L k k14_h3) fx)) $$ X2
      ihave X3 := (Entails.of_eq (xP_pos d L fx v3')) $$ X3
      ihave X3 := (Entails.of_eq (in_congr d L (off_11 L k v3').symm (in_inb L _) (k14_off11_inb L k k14_h6) fx)) $$ X3
      ihave HOut := (Entails.of_eq (oSet_out (oMix d L fx k.val) k.val hk)) $$ HOut
      icases HOut with ⟨Y0, Y1, HOut⟩
      ihave Y0 := (Entails.of_eq ((oMix_ge d L fx (t := k.val) (n := 2 * k.val) (by omega)).trans (oP_pos (F := F) d L v0))) $$ Y0
      icases Y0 with ⟨%f0, Y0⟩
      ihave Y0 := (Entails.of_eq (out_congr d L (off_5 L k v0).symm (out_inb L _) (k14_off5_inb L k k14_h2) f0)) $$ Y0
      ihave Y1 := (Entails.of_eq ((oMix_ge d L fx (t := k.val) (n := 2 * k.val + 1) (by omega)).trans (oP_pos (F := F) d L v1))) $$ Y1
      icases Y1 with ⟨%f1, Y1⟩
      ihave Y1 := (Entails.of_eq (out_congr d L (off_10 L k v1).symm (out_inb L _) (k14_off10_inb L k k14_h5) f1)) $$ Y1
      sl_exec
      sl_for (laneV0 d L g4) $$ [F8_dst R6]
      case region =>
        intro (j : Fin k14_t2_loop.trips) _
        unfold laneV0
        iintro ⟨HA, %g, HB, %hl⟩
        sl_exec
        sl_step
        isplitl [HA]; · iexact HA
        iexists _; isplitl [HB]; · iexact HB
        ipureintro; exact lanes_step d L a4 a6 g4 g j _ _ hl
      · unfold laneV0
        isplitl [F8_dst]; · iexact F8_dst
        iexists _; isplitl [R6]; · iexact R6
        ipureintro; exact lanes_zero d L a4 a6 g4 _
      iintro %_ HI
      unfold laneV0
      icases HI with ⟨H4, %g6', H6, %hl6⟩
      have hl6 : Lanes d L a4 a6 g4 g6' 200 := Eq.mp (congrArg (Lanes d L a4 a6 g4 g6') trips2) hl6
      sl_exec
      sl_for (laneV1 d L g5) $$ [F9_dst R7]
      case region =>
        intro (j : Fin k14_t3_loop.trips) _
        unfold laneV1
        iintro ⟨HA, %g, HB, %hl⟩
        sl_exec
        sl_step
        isplitl [HA]; · iexact HA
        iexists _; isplitl [HB]; · iexact HB
        ipureintro; exact lanes_step' d L a5 a7 g5 g j _ _ hl
      · unfold laneV1
        isplitl [F9_dst]; · iexact F9_dst
        iexists _; isplitl [R7]; · iexact R7
        ipureintro; exact lanes_zero d L a5 a7 g5 _
      iintro %_ HI
      unfold laneV1
      icases HI with ⟨H5, %g7', H7, %hl7⟩
      have hl7 : Lanes d L a5 a7 g5 g7' 200 := Eq.mp (congrArg (Lanes d L a5 a7 g5 g7') trips3) hl7
      sl_exec
      sl_step
      isplitr; · iexact Hmw
      isplitl [HO]
      · iexists _; isplitr
        rotate_left
        · iexact HO
        ipureintro; intro p hp
        rcases Finset.mem_insert.mp hp with rfl | hp
        · exact .inr rfl
        rcases Finset.mem_insert.mp hp with rfl | hp
        · exact .inr rfl
        exact hW' p hp
      isplitl [HX F8_src F9_src]
      · iapply (Entails.of_eq (xSet_in (xP d L fx) k.val hk).symm)
        isplitl [F8_src]; · iapply (Entails.of_eq (xP_pos d L fx v0).symm); iexact F8_src
        isplitl [F9_src]; · iapply (Entails.of_eq (xP_pos d L fx v1).symm); iexact F9_src
        iexact HX
      isplitl [HOut]
      · iapply (Entails.of_eq (congrArg (fun s => bigSep s (oMix d L fx (k.val + 1))) (show oCore k.val = oSet (k.val + 1) by rw [hk0]; decide)))
        iapply (Entails.of_eq (oMix_core d L fx k.val)); iexact HOut
      isplitl [F8]
      · iapply (Entails.of_eq (congrArg (inSlotV d L fx a4 cc14_scratch4.sem) (show 2 * k.val + 2 = 2 * (k.val + 1) by ring)))
        iapply (fl_inV d L fx (off_6 L k v2) (k14_off6_inb L k k14_h3) v2 a4 cc14_scratch4.sem); iexists _, _
        isplitr
        rotate_left
        · iexact F8
        ipureintro; intro y; rfl
      isplitl [F10 H6]
      · iapply (Entails.of_eq (congrArg (outSlotV d L fx a6 cc14_scratch6.sem) (show 2 * k.val + 2 = 2 * (k.val + 1) by ring)))
        iapply (fl_outV d L fx (off_5 L k v0) (k14_off5_inb L k k14_h2) v0 a4 a6 cc14_scratch6.sem f0 g4 g6' hl6 hin4); iexists _
        isplitr
        rotate_left
        · isplitl [F10]; · iexact F10
          iexact H6
        ipureintro; intro y; rfl
      isplitl [F9]
      · iapply (Entails.of_eq (congrArg (inSlotV d L fx a5 cc14_scratch5.sem) (show 2 * k.val + 3 = 2 * (k.val + 1) + 1 by ring)))
        iapply (fl_inV d L fx (off_11 L k v3') (k14_off11_inb L k k14_h6) v3' a5 cc14_scratch5.sem); iexists _, _
        isplitr
        rotate_left
        · iexact F9
        ipureintro; intro y; rfl
      · iapply (Entails.of_eq (congrArg (outSlotV d L fx a7 cc14_scratch7.sem) (show 2 * k.val + 1 + 2 = 2 * (k.val + 1) + 1 by ring)))
        iapply (fl_outV d L fx (off_10 L k v1) (k14_off10_inb L k k14_h5) v1 a5 a7 cc14_scratch7.sem f1 g5 g7' hl7 hin5); iexists _
        isplitr
        rotate_left
        · isplitl [F11]; · iexact F11
          iexact H7
        ipureintro; intro y; rfl
  · unfold invV
    isplitr; · iexact Hmw
    isplitl [HO]
    · iexists W; isplitr
      · ipureintro; exact fun p hp => .inl hp
      · iexact HO
    isplitl [HX]; · iexact HX
    isplitl [HOut]; · iapply (Entails.of_eq (oMix_zero d L fx).symm); iexact HOut
    isplitl [S8]; · iexact S8
    isplitl [H6 Hs10]
    · rw [outSlotV_neg d L fx (by omega)]; isplitl [H6]; · iexists _; iexact H6
      iexact Hs10
    isplitl [S9]; · iexact S9
    rw [outSlotV_neg d L fx (by omega)]; isplitl [H7]; · iexists _; iexact H7
    iexact Hs11
  iintro %acc' HI
  ihave HI := (Entails.of_eq (congrArg (fun t => invV d L O W fx t acc') trips1)) $$ HI
  unfold invV
  icases HI with ⟨-, ⟨%W', %hW', HO⟩, HX, HOut, S8, S10, S9, S11⟩
  have nv16 : ¬ valid L (2 * 8) := by unfold valid; omega
  have nv17 : ¬ valid L (2 * 8 + 1) := by unfold valid; omega
  have hm14 : 2 ≤ 2 * 8 ∧ valid L (2 * 8 - 2) := ⟨by omega, Or.inl (by omega)⟩
  ihave S8 := (Entails.of_eq (inSlotV_neg d L fx nv16)) $$ S8
  icases S8 with ⟨⟨%g4', H4⟩, Hs8⟩
  ihave S9 := (Entails.of_eq (inSlotV_neg d L fx nv17)) $$ S9
  icases S9 with ⟨⟨%g5', H5⟩, Hs9⟩
  ihave S10 := (Entails.of_eq (outSlotV_pos d L fx hm14)) $$ S10
  icases S10 with ⟨%g6', F10, R6⟩
  by_cases hb : big L
  · have k14_h8 : k14_cond8 L = 1#1 := (cond8_iff L).mpr hb
    have hm15 : 2 ≤ 2 * 8 + 1 ∧ valid L (2 * 8 + 1 - 2) := ⟨by omega, Or.inr ⟨by omega, hb⟩⟩
    ihave S11 := (Entails.of_eq (outSlotV_pos d L fx hm15)) $$ S11
    icases S11 with ⟨%g7', F11, R7⟩
    sl_exec
    sl_step
    isplitl [HX]; · iapply (xRange_end d L fx); iexact HX
    isplitl [HOut F10_dst F11_dst]
    · iapply (Entails.of_eq (oRange_end (oQ d L fx)).symm)
      isplitl [F10_dst]; · iapply (Entails.of_eq (oQ_pos d L fx hm14.2).symm); iexact F10_dst
      isplitl [F11_dst]; · iapply (Entails.of_eq (oQ_pos d L fx hm15.2).symm); iexact F11_dst
      iapply (Entails.of_eq (oMix_end d L fx)); iexact HOut
    isplitl [H4]; · iexists _; iexact H4
    isplitl [H5]; · iexists _; iexact H5
    isplitl [R6]; · iexists _; iexact R6
    isplitl [R7]; · iexists _; iexact R7
    isplitl [Hs8]; · iexact Hs8
    isplitl [Hs9]; · iexact Hs9
    isplitl [F10]; · iexact F10
    isplitl [F11]; · iexact F11
    isplitl [HO]
    · iexists _; isplitr
      rotate_left
      · iexact HO
      ipureintro; intro p hp
      rcases Finset.mem_insert.mp hp with rfl | hp
      · exact .inr rfl
      rcases Finset.mem_insert.mp hp with rfl | hp
      · exact .inr rfl
      exact hW' p hp
    iexact HR
  · have k14_h8 : ¬ k14_cond8 L = 1#1 := fun h => hb ((cond8_iff L).mp h)
    have hm15 : ¬ (2 ≤ 2 * 8 + 1 ∧ valid L (2 * 8 + 1 - 2)) := by intro h; have := h.2; unfold valid at this; omega
    ihave S11 := (Entails.of_eq (outSlotV_neg d L fx hm15)) $$ S11
    icases S11 with ⟨⟨%g7', R7⟩, F11⟩
    sl_exec
    sl_step
    isplitl [HX]; · iapply (xRange_end d L fx); iexact HX
    isplitl [HOut F10_dst]
    · iapply (Entails.of_eq (oRange_end (oQ d L fx)).symm)
      isplitl [F10_dst]; · iapply (Entails.of_eq (oQ_pos d L fx hm14.2).symm); iexact F10_dst
      isplitr; · iapply (Entails.of_eq (oQ_neg d L fx (n := 15) (by unfold valid; omega)).symm); iempintro
      iapply (Entails.of_eq (oMix_end d L fx)); iexact HOut
    isplitl [H4]; · iexists _; iexact H4
    isplitl [H5]; · iexists _; iexact H5
    isplitl [R6]; · iexists _; iexact R6
    isplitl [R7]; · iexists _; iexact R7
    isplitl [Hs8]; · iexact Hs8
    isplitl [Hs9]; · iexact Hs9
    isplitl [F10]; · iexact F10
    isplitl [F11]; · iexact F11
    isplitl [HO]
    · iexists _; isplitr
      rotate_left
      · iexact HO
      ipureintro; intro p hp
      rcases Finset.mem_insert.mp hp with rfl | hp
      · exact .inr rfl
      exact hW' p hp
    iexact HR

/-! The subcore's scoped storage: the four staging buffers and the four semaphores of this call, and the rest. -/

abbrev c8 : GSem nD τ sig := (thr d L, SemLoc.dma cc14_scratch4.sem)
abbrev c9 : GSem nD τ sig := (thr d L, SemLoc.dma cc14_scratch5.sem)
abbrev c10 : GSem nD τ sig := (thr d L, SemLoc.dma cc14_scratch6.sem)
abbrev c11 : GSem nD τ sig := (thr d L, SemLoc.dma cc14_scratch7.sem)

omit [FloatOps F] in
theorem ownSems0_V :
    (ownSems0 (thr d L) : sProp 𝕄)
      = iprop(semVal (c8 d L) 0 ∗ semVal (c9 d L) 0 ∗ semVal (c10 d L) 0 ∗ semVal (c11 d L) 0
          ∗ bigSep (((((ownCells (thr d L)).erase (c8 d L)).erase (c9 d L)).erase (c10 d L)).erase (c11 d L)) fun g => semVal g 0) := by
  unfold SparseCore.Cfg.ownSems0
  rw [SparseCore.bigSep_erase' ((mem_ownCells (g := c8 d L)).mpr ⟨rfl, by
      show (SemLoc.dma cc14_scratch4.sem : SemLoc sig).isScoped .scVector = true; decide⟩),
    SparseCore.bigSep_erase' (Finset.mem_erase.mpr ⟨fun e => absurd (Prod.mk.inj e).2 (by decide), (mem_ownCells (g := c9 d L)).mpr ⟨rfl, by
      show (SemLoc.dma cc14_scratch5.sem : SemLoc sig).isScoped .scVector = true; decide⟩⟩),
    SparseCore.bigSep_erase' (Finset.mem_erase.mpr ⟨fun e => absurd (Prod.mk.inj e).2 (by decide), Finset.mem_erase.mpr ⟨fun e => absurd (Prod.mk.inj e).2 (by decide),
      (mem_ownCells (g := c10 d L)).mpr ⟨rfl, by show (SemLoc.dma cc14_scratch6.sem : SemLoc sig).isScoped .scVector = true; decide⟩⟩⟩),
    SparseCore.bigSep_erase' (Finset.mem_erase.mpr ⟨fun e => absurd (Prod.mk.inj e).2 (by decide), Finset.mem_erase.mpr ⟨fun e => absurd (Prod.mk.inj e).2 (by decide),
      Finset.mem_erase.mpr ⟨fun e => absurd (Prod.mk.inj e).2 (by decide),
      (mem_ownCells (g := c11 d L)).mpr ⟨rfl, by show (SemLoc.dma cc14_scratch7.sem : SemLoc sig).isScoped .scVector = true; decide⟩⟩⟩⟩)]

abbrev pV (L : grid14.Coords) : Proc τ := Proc.scVector (cV L) (jV L)

omit [FloatOps F] in
theorem ownBufs_V :
    (ownBufs (thr d L) : sProp 𝕄)
      = iprop((∃ f, (thr d L).loc cc14_scratch0 ↦{fullShare} f) ∗ (∃ f, (thr d L).loc cc14_scratch1 ↦{fullShare} f)
          ∗ (∃ f, (thr d L).loc cc14_scratch2 ↦{fullShare} f) ∗ (∃ f, (thr d L).loc cc14_scratch3 ↦{fullShare} f)
          ∗ bigSep (((((ownRefs (τ := τ) (pV L)).erase ((pV L).devRef cc14_scratch0)).erase ((pV L).devRef cc14_scratch1)).erase
              ((pV L).devRef cc14_scratch2)).erase ((pV L).devRef cc14_scratch3))
              fun b => iprop(∃ f, ((d, b) : Loc nD τ sig) ↦{fullShare} f)) := by
  unfold SparseCore.Cfg.ownBufs
  refine (SparseCore.bigSep_erase' (SparseCore.Cfg.mem_ownRefs_of_owner (p := pV L) (b := (pV L).devRef cc14_scratch0) rfl)).trans ?_
  rw [SparseCore.bigSep_erase' (Finset.mem_erase.mpr ⟨fun e => absurd (Proc.devRef_injective _ e) (show (cc14_scratch1 : Ref sig .scVector) ≠ cc14_scratch0 by decide),
      SparseCore.Cfg.mem_ownRefs_of_owner (p := pV L) (b := (pV L).devRef cc14_scratch1) rfl⟩),
    SparseCore.bigSep_erase' (Finset.mem_erase.mpr ⟨fun e => absurd (Proc.devRef_injective _ e) (show (cc14_scratch2 : Ref sig .scVector) ≠ cc14_scratch1 by decide),
      Finset.mem_erase.mpr ⟨fun e => absurd (Proc.devRef_injective _ e) (show (cc14_scratch2 : Ref sig .scVector) ≠ cc14_scratch0 by decide),
      SparseCore.Cfg.mem_ownRefs_of_owner (p := pV L) (b := (pV L).devRef cc14_scratch2) rfl⟩⟩),
    SparseCore.bigSep_erase' (Finset.mem_erase.mpr ⟨fun e => absurd (Proc.devRef_injective _ e) (show (cc14_scratch3 : Ref sig .scVector) ≠ cc14_scratch2 by decide),
      Finset.mem_erase.mpr ⟨fun e => absurd (Proc.devRef_injective _ e) (show (cc14_scratch3 : Ref sig .scVector) ≠ cc14_scratch1 by decide),
      Finset.mem_erase.mpr ⟨fun e => absurd (Proc.devRef_injective _ e) (show (cc14_scratch3 : Ref sig .scVector) ≠ cc14_scratch0 by decide),
      SparseCore.Cfg.mem_ownRefs_of_owner (p := pV L) (b := (pV L).devRef cc14_scratch3) rfl⟩⟩⟩)]

/-- The rest of the subcore's scoped storage, which the task does not touch. -/
def restR : sProp 𝕄 :=
  iprop((bigSep (((((ownRefs (τ := τ) (pV L)).erase ((pV L).devRef cc14_scratch0)).erase ((pV L).devRef cc14_scratch1)).erase
              ((pV L).devRef cc14_scratch2)).erase ((pV L).devRef cc14_scratch3))
              fun b => iprop(∃ f, ((d, b) : Loc nD τ sig) ↦{fullShare} f))
      ∗ bigSep (((((ownCells (thr d L)).erase (c8 d L)).erase (c9 d L)).erase (c10 d L)).erase (c11 d L)) fun g => semVal g 0)

theorem body_pre (hO : ∀ g, O g none = 0) :
    iprop(levAts (K (F := F)).L (K (F := F)).lev ∗ emp ∗ goRes d L fx ∗ ownBufs (thr d L) ∗ ownSems0 (thr d L) ∗ owes (thr d L) O W)
      ⊢ runPre d L O W fx (restR (F := F) d L) := by
  rw [ownSems0_V, ownBufs_V]
  unfold goRes runPre restR
  iintro ⟨#Hlv, -, ⟨HX, HOut⟩, ⟨H4, H5, H6, H7, Hbufs⟩, ⟨Hs8, Hs9, Hs10, Hs11, Hsems⟩, HO⟩
  ihave Hmw := ((K (F := F)).mayWaits_none (thr := thr d L) hO) $$ Hlv
  isplitr; · iexact Hmw
  isplitl [HO]; · iexact HO
  isplitl [HX]; · iexact HX
  isplitl [HOut]; · iexact HOut
  isplitl [H4]; · iexact H4
  isplitl [H5]; · iexact H5
  isplitl [H6]; · iexact H6
  isplitl [H7]; · iexact H7
  isplitl [Hs8]; · iexact Hs8
  isplitl [Hs9]; · iexact Hs9
  isplitl [Hs10]; · iexact Hs10
  isplitl [Hs11]; · iexact Hs11
  isplitl [Hbufs]; · iexact Hbufs
  iexact Hsems

theorem body_post :
    runPost d L O W fx (restR (F := F) d L)
      ⊢ iprop(tdRes d L fx ∗ ownBufs (thr d L) ∗ ownSems0 (thr d L) ∗ ∃ W', ⌜∀ p ∈ W', p ∈ W ∨ p.2 = none⌝ ∗ owes (thr d L) O W') := by
  rw [ownSems0_V, ownBufs_V]
  unfold tdRes runPost restR
  iintro ⟨HX, HOut, H4, H5, H6, H7, Hs8, Hs9, Hs10, Hs11, HW, Hbufs, Hsems⟩
  isplitl [HX HOut]
  · isplitl [HX]; · iexact HX
    iexact HOut
  isplitl [H4 H5 H6 H7 Hbufs]
  · isplitl [H4]; · iexact H4
    isplitl [H5]; · iexact H5
    isplitl [H6]; · iexact H6
    isplitl [H7]; · iexact H7
    iexact Hbufs
  isplitl [Hs8 Hs9 Hs10 Hs11 Hsems]
  · isplitl [Hs8]; · iexact Hs8
    isplitl [Hs9]; · iexact Hs9
    isplitl [Hs10]; · iexact Hs10
    isplitl [Hs11]; · iexact Hs11
    iexact Hsems
  iexact HW

/-- The task in the launch theorem's shape: from what the call hands the tile and the subcore's scoped storage to
    what the tile hands back and the storage again. -/
theorem tile_body (hF : (K (F := F)).Facts) (hO : ∀ g, O g none = 0) :
    iprop(levAts (K (F := F)).L (K (F := F)).lev ∗ emp ∗ goRes d L fx ∗ scopedBufs (thr d L) ∗ scopedSems0 (thr d L) ∗ owes (thr d L) O W)
      ⊢ wp frame (wpE (defs₀ (F := F)) 𝒱₀ (thr d L) none) Set.univ
          (cc14_sc_group L xtW (Memref.isWhole_whole _) oW (Memref.isWhole_whole _) a4 (Memref.isWhole_whole _) a5 (Memref.isWhole_whole _)
            a6 (Memref.isWhole_whole _) a7 (Memref.isWhole_whole _) cc14_scratch4 cc14_scratch5 cc14_scratch6 cc14_scratch7)
          fun _ => iprop(tdRes d L fx ∗ scopedBufs (thr d L) ∗ scopedSems0 (thr d L)
            ∗ ∃ W', ⌜∀ p ∈ W', p ∈ W ∨ p.2 = none⌝ ∗ owes (thr d L) O W') := by
  rw [(K (F := F)).scopedBufs_V hF d (cV L) (jV L), SparseCore.Cfg.scopedSems0_V (Val := Elt F) d (cV L) (jV L)]
  exact (body_pre d L O W fx hO).trans ((tile_run d L O W fx (restR (F := F) d L)).trans (wp_mono frame _ _ fun _ => body_post d L O W fx))

end Tile

end Cert.Proof.TileK14

end
-- ==== Proof.TileBVal14.lean ====
/-
  What the staging buffers of one vector subcore hold while it copies a piece of 3200 consecutive elements of row 14 of
  the transposed argument into the flat result, read index by index. No program and no ownership here: only the contents.

  A transfer lands the piece in row 0 of an 8 × 3200 staging array (`InRow`: position (0, t) of that row holds element
  (0, pos + t) of the transposed argument, `pos` the piece's first column). A loop of 200 trips copies that row, 16 lanes
  per trip, into the first 3200 elements of a flat staging array of 25600: trip `j` reads the 1 × 16 window at columns
  [16 j, 16 j + 16) of row 0 and writes it, flattened, at elements [16 j, 16 j + 16). After `j` trips the first 16 j
  elements of the flat array are the first 16 j elements of the row (`Lanes`); a trip extends the prefix by 16
  (`lanes_step`: an element below 16 j is outside the window written and keeps its value, an element of the window reads
  the lane written there, which is the row's element at the same column). A second transfer writes the first 3200
  elements of the flat array to the piece of the result at the same `pos`; so every element of that piece of the result
  holds the element of row 14 of the transposed argument at its own position (`out_written`): the composite of the three
  index maps t ↦ (0, pos + t) ↦ (0, t) ↦ t ↦ pos + t is the identity on positions of the row.
-/
import proofs.«206869_g37898791420194_cont_8to1_b_558_20_alg».proof.Proof.TileB14Defs
import proofs.«206869_g37898791420194_cont_8to1_b_558_20_alg».proof.Proof.Spec
import Idealize.ShloMosaic.Lib.WritesUnit
import Idealize.ShloMosaic.Lib.ValueLayout

noncomputable section

namespace Cert.Proof.TileBVal14

open Cert.Proof.TileB14 Cert.Kernel Cert.Kernel.Gen
open Idealize.ShloMosaic Idealize.ShloMosaic.ValueIdx

variable {F : FTy → Type} [FloatOps F]
variable (d : Dev nD) (L : grid14.Coords)
variable (fx : Buf (Elt F) ((Memref.whole main_v0_scv : Memref sig .scVector .hbm S22x1600000 .f32).view.loc (thr d L)))

abbrev rowRect : Rect S8x3200 := Rect.unit (s := S8x3200) ![0, 0] S1x3200.size inb_S8x3200_S1x3200_0_0

/-- row 0 of the staging array is piece n of the argument row -/
def InRow (a : Memref sig .scVector .vmem S8x3200 .f32) (ga : Buf (Elt F) (a.view.loc (thr d L))) (n : ℕ) : Prop :=
  ∀ y : S1x3200.Idx, a.view.read (Elt F) ga (rowRect.emb y) = (inM L n).view.read (Elt F) fx y

theorem inRow_fetch (a : Memref sig .scVector .vmem S8x3200 .f32) (gold : Buf (Elt F) (a.view.loc (thr d L)))
    (w : S1x3200.Idx → Elt F .f32) (n : ℕ) (hw : ∀ y, w y = (inM L n).view.read (Elt F) fx y) :
    InRow d L fx a (a.view.writes (Elt F) gold [⟨rowRect, w⟩]) n :=
  fun y => (View.read_writes_cons_emb a.view gold rowRect w [] y).trans (hw y)

def Lanes (a : Memref sig .scVector .vmem S8x3200 .f32) (b : Memref sig .scVector .vmem S25600 .f32)
    (ga : Buf (Elt F) (a.view.loc (thr d L))) (gb : Buf (Elt F) (b.view.loc (thr d L))) (j : ℕ) : Prop :=
  ∀ (r : ℕ) (hr : r < 3200), r < 16 * j →
    b.view.read (Elt F) gb (ix1 (⟨r, by omega⟩ : Fin 25600)) = a.view.read (Elt F) ga (ix2 (0 : Fin 8) (⟨r, hr⟩ : Fin 3200))

theorem lanes_zero (a : Memref sig .scVector .vmem S8x3200 .f32) (b : Memref sig .scVector .vmem S25600 .f32)
    (ga : Buf (Elt F) (a.view.loc (thr d L))) (gb : Buf (Elt F) (b.view.loc (thr d L))) : Lanes d L a b ga gb 0 := by
  intro r hr h; omega

/-- The 1 × 16 window at column `c` of the staging array, read at lane `t`, is element `(0, c + t)`. -/
theorem idx_window {off : Fin 2 → ℕ} {c : ℕ} (h : off = ![0, c]) (p : ∀ a', off a' + S1x16.size a' ≤ S8x3200.size a')
    (t : Fin 16) (hr : c + t.val < 3200) :
    (Rect.unit (s := S8x3200) off S1x16.size p).toLoadRect.idx (ix2 (0 : Fin 1) t) = ix2 (0 : Fin 8) (⟨c + t.val, hr⟩ : Fin 3200) := by
  subst h
  funext a'; apply Fin.ext
  rw [LoadRect.idx_apply]
  match a' with
  | ⟨0, _⟩ => show 0 + 1 * 0 = 0; omega
  | ⟨1, _⟩ => show c + 1 * t.val = c + t.val; omega

/-- One trip of a lane-copy loop, the offsets given by their closed forms. -/
theorem lanes_step_core (a : Memref sig .scVector .vmem S8x3200 .f32) (b : Memref sig .scVector .vmem S25600 .f32)
    (ga : Buf (Elt F) (a.view.loc (thr d L))) (gb : Buf (Elt F) (b.view.loc (thr d L)))
    (t : ℕ) {off3 : Fin 2 → ℕ} {off4 : Fin 1 → ℕ} (h3 : off3 = ![0, 16 * t]) (h4 : off4 = ![16 * t])
    (p3 : ∀ a', off3 a' + S1x16.size a' ≤ S8x3200.size a') (p4 : ∀ a', off4 a' + S16.size a' ≤ S25600.size a')
    (h : Lanes d L a b ga gb t) :
    Lanes d L a b ga (b.view.writes (Elt F) gb [⟨Rect.unit (s := S25600) off4 S16.size p4,
      shapeCast S16 (a.view.readAt (Elt F) (Rect.unit (s := S8x3200) off3 S1x16.size p3).toLoadRect ga) shapeCasts_S1x16_S16⟩]) (t + 1) := by
  intro r hr hlt
  by_cases hlo : r < 16 * t
  · refine (View.read_writes_cons_unit_of_not_mem b.view gb p4 _ [] _ h4 (0 : Fin 1) (Or.inl ?_)).trans (h r hr hlo)
    show r < 16 * t
    exact hlo
  · have hx : r - 16 * t < 16 := by omega
    refine (View.read_writes_cons_unit_of_mem b.view gb p4 _ [] _ (ix1 (⟨r - 16 * t, hx⟩ : Fin 16)) h4 ?_).trans ?_
    · intro a'
      match a' with
      | ⟨0, _⟩ => show r = 16 * t + (r - 16 * t); omega
    · rw [shapeCast_1a_a_apply, View.readAt_apply, idx_window h3 p3 ⟨r - 16 * t, hx⟩ (by show 16 * t + (r - 16 * t) < 3200; omega)]
      congr 2
      apply Fin.ext
      show 16 * t + (r - 16 * t) = r
      omega

theorem lanes_step (a : Memref sig .scVector .vmem S8x3200 .f32) (b : Memref sig .scVector .vmem S25600 .f32)
    (ga : Buf (Elt F) (a.view.loc (thr d L))) (gb : Buf (Elt F) (b.view.loc (thr d L)))
    (j : Fin k14_t2_loop.trips) (p3 : ∀ a', (k14_off3 j) a' + S1x16.size a' ≤ S8x3200.size a')
    (p4 : ∀ a', (k14_off4 j) a' + S16.size a' ≤ S25600.size a') (h : Lanes d L a b ga gb j.val) :
    Lanes d L a b ga (b.view.writes (Elt F) gb [⟨Rect.unit (s := S25600) (k14_off4 j) S16.size p4,
      k14_pay1 (a.view.readAt (Elt F) (Rect.unit (s := S8x3200) (k14_off3 j) S1x16.size p3).toLoadRect ga)⟩]) (j.val + 1) :=
  lanes_step_core d L a b ga gb j.val (k14_off3_eq j) (k14_off4_eq j) p3 p4 h

theorem lanes_step' (a : Memref sig .scVector .vmem S8x3200 .f32) (b : Memref sig .scVector .vmem S25600 .f32)
    (ga : Buf (Elt F) (a.view.loc (thr d L))) (gb : Buf (Elt F) (b.view.loc (thr d L)))
    (j : Fin k14_t3_loop.trips) (p3 : ∀ a', (k14_off8 j) a' + S1x16.size a' ≤ S8x3200.size a')
    (p4 : ∀ a', (k14_off9 j) a' + S16.size a' ≤ S25600.size a') (h : Lanes d L a b ga gb j.val) :
    Lanes d L a b ga (b.view.writes (Elt F) gb [⟨Rect.unit (s := S25600) (k14_off9 j) S16.size p4,
      k14_pay2 (a.view.readAt (Elt F) (Rect.unit (s := S8x3200) (k14_off8 j) S1x16.size p3).toLoadRect ga)⟩]) (j.val + 1) :=
  lanes_step_core d L a b ga gb j.val (k14_off8_eq j) (k14_off9_eq j) p3 p4 h

/-- Position `y` of the write-out window of the flat staging array is its element `y 0`. -/
theorem stg_emb (y : S3200.Idx) (hy : (y 0).val < 25600) :
    (Rect.unit (s := S25600) ![0] S3200.size inb_S25600_S3200_0).emb y = ix1 (⟨(y 0).val, hy⟩ : Fin 25600) := by
  funext a'; apply Fin.ext
  match a' with
  | ⟨0, _⟩ => show 0 + 1 * (y 0).val = (y 0).val; omega

/-- Position `(0, t)` of row 0 of the staging array is its element `(0, t)`. -/
theorem row_emb (t : Fin 3200) : rowRect.emb (ix2 (0 : Fin 1) t) = ix2 (0 : Fin 8) t := by
  funext a'; apply Fin.ext
  match a' with
  | ⟨0, _⟩ => show 0 + 1 * 0 = 0; omega
  | ⟨1, _⟩ => show 0 + 1 * t.val = t.val; omega

/-- Position `(0, t)` of piece `n` of the argument row is element `(0, pos + t)` of the transposed argument;
    position `y` of piece `n` of the result is element `pos + y 0` of the result. -/
theorem in_emb (n : ℕ) (t : Fin 3200) (h : pos L n + t.val < 1600000) :
    (inM L n).view.emb (ix2 (0 : Fin 1) t) = ix2 (14 : Fin 22) (⟨pos L n + t.val, h⟩ : Fin 1600000) := by
  funext a'; apply Fin.ext
  match a' with
  | ⟨0, _⟩ => show 14 + 1 * 0 = 14; omega
  | ⟨1, _⟩ => show pos L n + 1 * t.val = pos L n + t.val; omega

theorem out_emb (n : ℕ) (y : S3200.Idx) (h : pos L n + (y 0).val < 1600000) :
    (outM L n).view.emb y = ix1 (⟨pos L n + (y 0).val, h⟩ : Fin 1600000) := by
  funext a'; apply Fin.ext
  match a' with
  | ⟨0, _⟩ => show pos L n + 1 * (y 0).val = pos L n + (y 0).val; omega

/-- Both lane-copy loops run 200 trips: 200 · 16 = 3200, the whole row. -/
theorem trips2 : k14_t2_loop.trips = 200 := by decide
theorem trips3 : k14_t3_loop.trips = 200 := by decide

/-- After all its trips a lane-copy loop has copied the whole row. -/
theorem lanes_all (a : Memref sig .scVector .vmem S8x3200 .f32) (b : Memref sig .scVector .vmem S25600 .f32)
    (ga : Buf (Elt F) (a.view.loc (thr d L))) (gb : Buf (Elt F) (b.view.loc (thr d L)))
    (h : Lanes d L a b ga gb k14_t2_loop.trips) : Lanes d L a b ga gb 200 := trips2 ▸ h
theorem lanes_all' (a : Memref sig .scVector .vmem S8x3200 .f32) (b : Memref sig .scVector .vmem S25600 .f32)
    (ga : Buf (Elt F) (a.view.loc (thr d L))) (gb : Buf (Elt F) (b.view.loc (thr d L)))
    (h : Lanes d L a b ga gb k14_t3_loop.trips) : Lanes d L a b ga gb 200 := trips3 ▸ h

/-- The write-out of a piece: the first 3200 elements of the flat staging array, which the 200 lane copies filled from
    row 0 of the staging array, which the fetch filled from piece `n` of row 14 of the transposed argument, land at
    piece `n` of the result, at the same positions of the row. -/
theorem out_written (a : Memref sig .scVector .vmem S8x3200 .f32) (b : Memref sig .scVector .vmem S25600 .f32) (n : ℕ)
    (ga : Buf (Elt F) (a.view.loc (thr d L))) (gb : Buf (Elt F) (b.view.loc (thr d L)))
    (f0 : Buf (Elt F) ((outM L n).view.loc (thr d L))) (w : S3200.Idx → Elt F .f32)
    (hw : ∀ y, w y = (stg b).view.read (Elt F) gb y) (hl : Lanes d L a b ga gb 200) (hr : InRow d L fx a ga n) (hv : valid L n) :
    ∀ i ∈ (outM L n).view.set, ((outM L n).view.writes (Elt F) f0 [⟨Rect.whole _, w⟩]) i = Cert.Spec.row 14 fx i := by
  intro i hi
  obtain ⟨y, -, rfl⟩ := Finset.mem_map.mp hi
  have hy : (y 0).val < 3200 := (y 0).isLt
  have hp : pos L n + (y 0).val < 1600000 := by unfold pos; omega
  have e1 : (outM L n).view.writes (Elt F) f0 [⟨Rect.whole _, w⟩] ((outM L n).view.emb y) = w y := by
    have h := View.read_writes_cons_emb (outM L n).view f0 (Rect.whole _) w [] y
    rw [Rect.emb_whole_apply] at h
    exact (cast_eq _ _).symm.trans ((View.read_apply _ _).symm.trans h)
  have e2 : (stg b).view.read (Elt F) gb y = b.view.read (Elt F) gb (ix1 (⟨(y 0).val, by omega⟩ : Fin 25600)) :=
    congrArg (b.view.read (Elt F) gb) (stg_emb y (by omega))
  have e3 : a.view.read (Elt F) ga (ix2 (0 : Fin 8) (⟨(y 0).val, hy⟩ : Fin 3200))
      = (inM L n).view.read (Elt F) fx (ix2 (0 : Fin 1) (⟨(y 0).val, hy⟩ : Fin 3200)) :=
    (congrArg (a.view.read (Elt F) ga) (row_emb ⟨(y 0).val, hy⟩).symm).trans (hr _)
  have e4 : (inM L n).view.read (Elt F) fx (ix2 (0 : Fin 1) (⟨(y 0).val, hy⟩ : Fin 3200))
      = fx (ix2 (14 : Fin 22) (⟨pos L n + (y 0).val, hp⟩ : Fin 1600000)) :=
    ((View.read_apply _ _).trans (cast_eq _ _)).trans (congrArg fx (in_emb L n ⟨(y 0).val, hy⟩ hp))
  have e5 : Cert.Spec.row 14 fx ((outM L n).view.emb y) = fx (ix2 (14 : Fin 22) (⟨pos L n + (y 0).val, hp⟩ : Fin 1600000)) :=
    (congrArg (Cert.Spec.row 14 fx) (out_emb L n y hp)).trans (Cert.Spec.row_apply 14 fx _)
  exact e1.trans ((hw y).trans (e2.trans ((hl _ hy (by omega)).trans (e3.trans (e4.trans e5.symm)))))

end Cert.Proof.TileBVal14

end
-- ==== Proof.TileB14.lean ====
/-
  One vector subcore's task of copy kernel 14 (counting from 0), run symbolically: the two fetch slots and two write-out slots
  between trips of the main loop (what each transfer in flight will hand back, and what the staging buffers hold), the
  invariant of the main loop and of the two lane-copy loops, and the task's run — from the tile's pieces of row 14 of
  the transposed argument and of the result to the same pieces with the result holding the row's elements.
-/
import proofs.«206869_g37898791420194_cont_8to1_b_558_20_alg».proof.Proof.TileB14Defs
import proofs.«206869_g37898791420194_cont_8to1_b_558_20_alg».proof.Proof.TileBVal14
noncomputable section

namespace Cert.Proof.TileB14

open Cert.Kernel Cert.Kernel.Gen Cert.Proof.TileBVal14
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 22) (Elt F) ℕ UU ℕ
local notation "xtW" => (Memref.whole Cert.Kernel.main_v0_scv : Memref Cert.Kernel.sig Kind.scVector Space.hbm Cert.Kernel.S22x1600000 EltTy.f32)
local notation "oW" => (Memref.whole Cert.Kernel.main_v15_scv : Memref Cert.Kernel.sig Kind.scVector Space.hbm Cert.Kernel.S1600000 EltTy.f32)
local notation "a4" => (Memref.whole Cert.Kernel.cc14_scratch0 : Memref Cert.Kernel.sig Kind.scVector Space.vmem Cert.Kernel.S8x3200 EltTy.f32)
local notation "a5" => (Memref.whole Cert.Kernel.cc14_scratch1 : Memref Cert.Kernel.sig Kind.scVector Space.vmem Cert.Kernel.S8x3200 EltTy.f32)
local notation "a6" => (Memref.whole Cert.Kernel.cc14_scratch2 : Memref Cert.Kernel.sig Kind.scVector Space.vmem Cert.Kernel.S25600 EltTy.f32)
local notation "a7" => (Memref.whole Cert.Kernel.cc14_scratch3 : Memref Cert.Kernel.sig Kind.scVector Space.vmem Cert.Kernel.S25600 EltTy.f32)

variable [FloatOps F]

section Tile

variable (d : Dev nD) (L : grid14.Coords)
variable (O : CellTallies nD τ sig (HIx 22)) (W : Waits sig (HIx 22))
variable (fx : Buf (Elt F) ((xtW).view.loc (thr d L)))

/-- Piece `n` of the result at its final contents. -/
abbrev oqPiece (n : ℕ) : sProp 𝕄 := (outM L n).view.loc (thr d L) ↦[(outM L n).view.set]{fullShare} (Cert.Spec.row 14 fx)
theorem oQ_pos {n : ℕ} (v : valid L n) : oQ d L fx n = oqPiece d L fx n := if_pos v
theorem oQ_neg {n : ℕ} (v : ¬ valid L n) : oQ d L fx n = iprop(emp) := if_neg v

/-- A fetch slot, remembering that the staging row it will hand back holds the piece. -/
def inSlotV (a : Memref sig .scVector .vmem S8x3200 .f32) (sm : DmaSem sig) (n : ℕ) : sProp 𝕄 :=
  if valid L n then
    iprop(∃ g, ⌜InRow d L fx a g n⌝ ∗ Transfers.Flight countersEmb (thr d L) (SemLoc.dma sm) (default : HIx 22) NN
      iprop((a.view.loc (thr d L) ↦{fullShare} g) ∗ xtPiece d L fx n))
  else iprop((∃ g, a.view.loc (thr d L) ↦{fullShare} g) ∗ semVal (thr d L, SemLoc.dma sm) 0)

/-- A write-out slot: the piece in flight will come back holding the row's elements. -/
def outSlotV (a : Memref sig .scVector .vmem S25600 .f32) (sm : DmaSem sig) (m : ℕ) : sProp 𝕄 :=
  if 2 ≤ m ∧ valid L (m - 2) then
    iprop(∃ g, Transfers.Flight countersEmb (thr d L) (SemLoc.dma sm) (default : HIx 22) NN
        iprop(oqPiece d L fx (m - 2) ∗ ((stg a).view.loc (thr d L) ↦[(stg a).view.set]{fullShare} g))
      ∗ (a.view.loc (thr d L) ↦[Finset.univ \ (stg a).view.set]{fullShare} g))
  else iprop((∃ g, a.view.loc (thr d L) ↦{fullShare} g) ∗ semVal (thr d L, SemLoc.dma sm) 0)

theorem inSlotV_pos {a : Memref sig .scVector .vmem S8x3200 .f32} {sm : DmaSem sig} {n : ℕ} (v : valid L n) :
    inSlotV d L fx a sm n = iprop(∃ g, ⌜InRow d L fx a g n⌝ ∗ Transfers.Flight countersEmb (thr d L) (SemLoc.dma sm) (default : HIx 22) NN
      iprop((a.view.loc (thr d L) ↦{fullShare} g) ∗ xtPiece d L fx n)) := by unfold inSlotV; rw [if_pos v]
theorem inSlotV_neg {a : Memref sig .scVector .vmem S8x3200 .f32} {sm : DmaSem sig} {n : ℕ} (v : ¬ valid L n) :
    inSlotV d L fx a sm n = iprop((∃ g, a.view.loc (thr d L) ↦{fullShare} g) ∗ semVal (thr d L, SemLoc.dma sm) 0) := by
  unfold inSlotV; rw [if_neg v]
theorem outSlotV_pos {a : Memref sig .scVector .vmem S25600 .f32} {sm : DmaSem sig} {m : ℕ} (h : 2 ≤ m ∧ valid L (m - 2)) :
    outSlotV d L fx a sm m = iprop(∃ g, Transfers.Flight countersEmb (thr d L) (SemLoc.dma sm) (default : HIx 22) NN
        iprop(oqPiece d L fx (m - 2) ∗ ((stg a).view.loc (thr d L) ↦[(stg a).view.set]{fullShare} g))
      ∗ (a.view.loc (thr d L) ↦[Finset.univ \ (stg a).view.set]{fullShare} g)) := by unfold outSlotV; rw [if_pos h]
theorem outSlotV_neg {a : Memref sig .scVector .vmem S25600 .f32} {sm : DmaSem sig} {m : ℕ} (h : ¬ (2 ≤ m ∧ valid L (m - 2))) :
    outSlotV d L fx a sm m = iprop((∃ g, a.view.loc (thr d L) ↦{fullShare} g) ∗ semVal (thr d L, SemLoc.dma sm) 0) := by
  unfold outSlotV; rw [if_neg h]

/-- A fetch just issued: the staging row will hold what the transfer reads, which is the piece. -/
theorem fl_inV {off : Fin 2 → ℕ} {n : ℕ} (h : off = ![14, pos L n]) (p : ∀ a, off a + S1x3200.size a ≤ S22x1600000.size a) (v : valid L n)
    (a : Memref sig .scVector .vmem S8x3200 .f32) (sm : DmaSem sig) :
    (iprop(∃ (gold : Buf (Elt F) (a.view.loc (thr d L))) (w : S1x3200.Idx → Elt F .f32),
        ⌜∀ y, w y = ((xtW).slice (Rect.unit (s := S22x1600000) off S1x3200.size p) (fun _ => rfl)).view.read (Elt F) fx y⌝
        ∗ Transfers.Flight countersEmb (thr d L) (SemLoc.dma sm) (default : HIx 22) NN
          iprop((a.view.loc (thr d L) ↦{fullShare} a.view.writes (Elt F) gold [⟨rowRect, w⟩])
            ∗ (((xtW).slice (Rect.unit (s := S22x1600000) off S1x3200.size p) (fun _ => rfl)).view.loc (thr d L)
                ↦[((xtW).slice (Rect.unit (s := S22x1600000) off S1x3200.size p) (fun _ => rfl)).view.set]{fullShare} fx))) : sProp 𝕄)
      ⊢ inSlotV d L fx a sm n := by
  subst h
  rw [inSlotV_pos d L fx v]
  iintro ⟨%gold, %w, %hw, H⟩
  iexists _
  isplitr
  · ipureintro; exact inRow_fetch d L fx a gold w n hw
  · iexact H

set_option maxHeartbeats 4000000 in
/-- A write-out just issued from a flat staging buffer whose first 3200 elements are the staging row, itself piece
    `n` of the argument row: the piece of the result will hold the row's elements. -/
theorem fl_outV {off : Fin 1 → ℕ} {n : ℕ} (h : off = ![pos L n]) (p : ∀ a, off a + S3200.size a ≤ S1600000.size a) (v : valid L n)
    (ar : Memref sig .scVector .vmem S8x3200 .f32) (a : Memref sig .scVector .vmem S25600 .f32) (sm : DmaSem sig)
    (f0 : Buf (Elt F) ((oW).view.loc (thr d L))) (ga : Buf (Elt F) (ar.view.loc (thr d L))) (gb : Buf (Elt F) (a.view.loc (thr d L)))
    (hl : Lanes d L ar a ga gb 200) (hr : InRow d L fx ar ga n) :
    (iprop(∃ (w : S3200.Idx → Elt F .f32),
        ⌜∀ y, w y = (stg a).view.read (Elt F) gb y⌝
        ∗ Transfers.Flight countersEmb (thr d L) (SemLoc.dma sm) (default : HIx 22) NN
          iprop((((oW).slice (Rect.unit (s := S1600000) off S3200.size p) (fun _ => rfl)).view.loc (thr d L)
                ↦[((oW).slice (Rect.unit (s := S1600000) off S3200.size p) (fun _ => rfl)).view.set]{fullShare}
                  (((oW).slice (Rect.unit (s := S1600000) off S3200.size p) (fun _ => rfl)).view.writes (Elt F) f0 [⟨Rect.whole _, w⟩]))
            ∗ ((stg a).view.loc (thr d L) ↦[(stg a).view.set]{fullShare} gb))
        ∗ (a.view.loc (thr d L) ↦[Finset.univ \ (stg a).view.set]{fullShare} gb)) : sProp 𝕄)
      ⊢ outSlotV d L fx a sm (n + 2) := by
  subst h
  rw [outSlotV_pos d L fx (m := n + 2) ⟨by omega, by simpa using v⟩]
  iintro ⟨%w, %hw, H, R⟩
  have hD : (iprop(((outM L n).view.loc (thr d L) ↦[(outM L n).view.set]{fullShare} ((outM L n).view.writes (Elt F) f0 [⟨Rect.whole _, w⟩]))
          ∗ ((stg a).view.loc (thr d L) ↦[(stg a).view.set]{fullShare} gb)) : sProp 𝕄)
      ⊢ iprop(oqPiece d L fx (n + 2 - 2) ∗ ((stg a).view.loc (thr d L) ↦[(stg a).view.set]{fullShare} gb)) := by
    rw [Nat.add_sub_cancel]
    have e : (((outM L n).view.loc (thr d L) ↦[(outM L n).view.set]{fullShare} ((outM L n).view.writes (Elt F) f0 [⟨Rect.whole _, w⟩])) : sProp 𝕄)
        = oqPiece d L fx n := pointsTo_congr (out_written d L fx ar a n ga gb f0 w hw hl hr v)
    iintro ⟨H1, H2⟩
    isplitl [H1]
    · iapply (Entails.of_eq e); iexact H1
    · iexact H2
  iexists gb
  isplitl [H]
  · iapply (Transfers.Flight_mono countersEmb (thr d L) hD); iexact H
  · iexact R

/-- The result pieces outside the slots before trip `t`: those already written hold the row, the others some contents. -/
def oMix (t n : ℕ) : sProp 𝕄 := if n + 2 < 2 * t then oQ d L fx n else oP (F := F) d L n
theorem oMix_lt {t n : ℕ} (h : n + 2 < 2 * t) : oMix d L fx t n = oQ d L fx n := if_pos h
theorem oMix_ge {t n : ℕ} (h : ¬ n + 2 < 2 * t) : oMix d L fx t n = oP (F := F) d L n := if_neg h
theorem oMix_core (k : ℕ) : bigSep (oCore k) (oMix d L fx k) = bigSep (oCore k) (oMix d L fx (k + 1)) :=
  bigSep_congr fun n hn => by
    have hn' : n + 2 ≠ 2 * k ∧ n + 2 ≠ 2 * k + 1 ∧ n ≠ 2 * k ∧ n ≠ 2 * k + 1 := by
      simp only [oCore, Finset.mem_filter, Finset.mem_range] at hn; exact hn.2
    by_cases h : n + 2 < 2 * k
    · rw [oMix_lt d L fx h, oMix_lt d L fx (by omega)]
    · rw [oMix_ge d L fx h, oMix_ge d L fx (by omega)]
theorem oMix_zero : bigSep (oSet 0) (oMix d L fx 0) = bigSep (Finset.range 18) (oP (F := F) d L) := by
  rw [oSet_zero]; exact bigSep_congr fun n _ => oMix_ge d L fx (by omega)
theorem oMix_end : bigSep (oSet 8) (oMix d L fx 8) = bigSep (oSet 8) (oQ d L fx) :=
  bigSep_congr fun n hn => by
    have hn' : n < 18 ∧ n + 2 ≠ 16 ∧ n + 2 ≠ 17 := by simpa only [oSet, Finset.mem_filter, Finset.mem_range] using hn
    by_cases h : n + 2 < 2 * 8
    · exact oMix_lt d L fx h
    · rw [oMix_ge d L fx h, oP_neg (F := F) d L (by unfold valid; omega), oQ_neg d L fx (by unfold valid; omega)]

/-- The lane-copy loops: before trip `j` the first 16·j elements of the flat staging buffer are the staging row's. -/
def laneV0 (g4 : Buf (Elt F) ((a4).view.loc (thr d L))) (j : ℕ) (_ : PUnit) : sProp 𝕄 :=
  iprop(((a4).view.loc (thr d L) ↦{fullShare} g4) ∗ (∃ g, ((a6).view.loc (thr d L) ↦{fullShare} g) ∗ ⌜Lanes d L a4 a6 g4 g j⌝))
def laneV1 (g5 : Buf (Elt F) ((a5).view.loc (thr d L))) (j : ℕ) (_ : PUnit) : sProp 𝕄 :=
  iprop(((a5).view.loc (thr d L) ↦{fullShare} g5) ∗ (∃ g, ((a7).view.loc (thr d L) ↦{fullShare} g) ∗ ⌜Lanes d L a5 a7 g5 g j⌝))

def invV (t : ℕ) (_ : PUnit) : sProp 𝕄 :=
  iprop(Transfers.MayWaits (thr d L) (none : HIx 22) O
    ∗ (∃ W', ⌜∀ p ∈ W', p ∈ W ∨ p.2 = none⌝ ∗ owes (thr d L) O W')
    ∗ bigSep (xSet t) (xP d L fx) ∗ bigSep (oSet t) (oMix d L fx t)
    ∗ inSlotV d L fx a4 cc14_scratch4.sem (2 * t) ∗ outSlotV d L fx a6 cc14_scratch6.sem (2 * t)
    ∗ inSlotV d L fx a5 cc14_scratch5.sem (2 * t + 1) ∗ outSlotV d L fx a7 cc14_scratch7.sem (2 * t + 1))

/-- After the last trip nothing of the argument row is in a slot: the tile holds all its pieces. -/
theorem xRange_end : bigSep (xSet 8) (xP d L fx) ⊢ bigSep (Finset.range 18) (xP d L fx) := by
  rw [two_out (s := Finset.range 18) (a := 16) (b := 17) (by decide) (by decide) (by decide),
    show ((Finset.range 18).erase 16).erase 17 = xSet 8 by decide]
  iintro H
  isplitr; · iapply (Entails.of_eq (xP_neg d L fx (n := 16) (by unfold valid; omega)).symm); iempintro
  isplitr; · iapply (Entails.of_eq (xP_neg d L fx (n := 17) (by unfold valid; omega)).symm); iempintro
  iexact H
omit [FloatOps F] in
theorem oRange_end (Φ : ℕ → sProp 𝕄) : bigSep (Finset.range 18) Φ = iprop(Φ 14 ∗ Φ 15 ∗ bigSep (oSet 8) Φ) := by
  rw [two_out (s := Finset.range 18) (a := 14) (b := 15) (by decide) (by decide) (by decide),
    show ((Finset.range 18).erase 14).erase 15 = oSet 8 by decide]

/-- What the run starts from and ends with, beside an untouched rest `R`. -/
def runPre (R : sProp 𝕄) : sProp 𝕄 :=
    iprop(Transfers.MayWaits (thr d L) (none : HIx 22) O ∗ owes (thr d L) O W
        ∗ bigSep (Finset.range 18) (xP d L fx) ∗ bigSep (Finset.range 18) (oP (F := F) d L)
        ∗ (∃ g, (a4).view.loc (thr d L) ↦{fullShare} g) ∗ (∃ g, (a5).view.loc (thr d L) ↦{fullShare} g)
        ∗ (∃ g, (a6).view.loc (thr d L) ↦{fullShare} g) ∗ (∃ g, (a7).view.loc (thr d L) ↦{fullShare} g)
        ∗ semVal (thr d L, SemLoc.dma cc14_scratch4.sem) 0 ∗ semVal (thr d L, SemLoc.dma cc14_scratch5.sem) 0
        ∗ semVal (thr d L, SemLoc.dma cc14_scratch6.sem) 0 ∗ semVal (thr d L, SemLoc.dma cc14_scratch7.sem) 0 ∗ R)
def runPost (R : sProp 𝕄) : sProp 𝕄 :=
    iprop(bigSep (Finset.range 18) (xP d L fx) ∗ bigSep (Finset.range 18) (oQ d L fx)
            ∗ (∃ g, (a4).view.loc (thr d L) ↦{fullShare} g) ∗ (∃ g, (a5).view.loc (thr d L) ↦{fullShare} g)
            ∗ (∃ g, (a6).view.loc (thr d L) ↦{fullShare} g) ∗ (∃ g, (a7).view.loc (thr d L) ↦{fullShare} g)
            ∗ semVal (thr d L, SemLoc.dma cc14_scratch4.sem) 0 ∗ semVal (thr d L, SemLoc.dma cc14_scratch5.sem) 0
            ∗ semVal (thr d L, SemLoc.dma cc14_scratch6.sem) 0 ∗ semVal (thr d L, SemLoc.dma cc14_scratch7.sem) 0
            ∗ (∃ W', ⌜∀ p ∈ W', p ∈ W ∨ p.2 = none⌝ ∗ owes (thr d L) O W') ∗ R)

set_option maxHeartbeats 16000000 in
/-- The task's run: from its pieces of the argument row and of the result, the four staging buffers and the four
    semaphores at zero, to the same with every piece of the result holding the row's elements. -/
theorem tile_run (R : sProp 𝕄) :
    runPre d L O W fx R
      ⊢ wp frame (wpE (defs₀ (F := F)) 𝒱₀ (thr d L) none) Set.univ
          (cc14_sc_group L xtW (Memref.isWhole_whole _) oW (Memref.isWhole_whole _) a4 (Memref.isWhole_whole _) a5 (Memref.isWhole_whole _)
            a6 (Memref.isWhole_whole _) a7 (Memref.isWhole_whole _) cc14_scratch4 cc14_scratch5 cc14_scratch6 cc14_scratch7)
          fun _ => runPost d L O W fx R := by
  unfold runPre runPost
  have v0 : valid L 0 := Or.inl (by omega)
  have v1 : valid L 1 := Or.inl (by omega)
  have k14_h7 : k14_cond7 L = 1#1 := cond7_iff L
  iintro ⟨#Hmw, HO, HX, HOut, ⟨%g4, H4⟩, ⟨%g5, H5⟩, ⟨%g6, H6⟩, ⟨%g7, H7⟩, Hs8, Hs9, Hs10, Hs11, HR⟩
  ihave HX := (Entails.of_eq (xRange_split d L fx v0 v1)) $$ HX
  icases HX with ⟨X0, X1, HX⟩
  ihave X0 := (Entails.of_eq (in_congr d L (off_in0 L v0).symm (in_inb L _) (k14_off1_inb L 0) fx)) $$ X0
  ihave X1 := (Entails.of_eq (in_congr d L (off_in1 L v1).symm (in_inb L _) (k14_off1_inb L 1) fx)) $$ X1
  sl_unfold [cc14_sc_group]
  sl_exec
  ihave S8 := (fl_inV d L fx (off_in0 L v0) (k14_off1_inb L 0) v0 a4 cc14_scratch4.sem) $$ [Hs8]
  · iexists _, _
    isplitr
    rotate_left
    · iexact Hs8
    ipureintro; intro y; rfl
  ihave S9 := (fl_inV d L fx (off_in1 L v1) (k14_off1_inb L 1) v1 a5 cc14_scratch5.sem) $$ [Hs9]
  · iexists _, _
    isplitr
    rotate_left
    · iexact Hs9
    ipureintro; intro y; rfl
  sl_for (invV d L O W fx) $$ [HO HX HOut S8 S9 H6 H7 Hs10 Hs11]
  case region =>
    intro (k : Fin k14_t1_loop.trips) acc
    have hk : k.val < 8 := Nat.lt_of_lt_of_eq k.isLt trips1
    unfold invV
    iintro ⟨#Hmw, ⟨%W', %hW', HO⟩, HX, HOut, S8, S10, S9, S11⟩
    by_cases hk1 : 1 ≤ k.val
    · by_cases v3 : valid L (2 * k.val + 3)
      · -- the generic trip: both drains, both pieces worked, both next fetches issued
        have hk6 : k.val ≤ 6 := by unfold valid at v3; omega
        have k14_h1 : k14_cond1 k = 1#1 := (cond1_iff k).mpr (by omega)
        have k14_h2 : k14_cond2 L k = 1#1 := cond2_iff L k
        have k14_h3 : k14_cond3 L k = 1#1 := (cond3_iff L k).mpr (by omega)
        have k14_h4 : k14_cond4 k = 1#1 := (cond4_iff k).mpr (by omega)
        have k14_h5 : k14_cond5 L k = 1#1 := (cond5_iff L k).mpr (by first | (unfold valid big at *; omega) | (unfold big at *; omega) | omega)
        have k14_h6 : k14_cond6 L k = 1#1 := (cond6_iff L k).mpr (by first | (unfold valid big at *; omega) | (unfold big at *; omega) | omega)
        have v0 : valid L (2 * k.val) := by unfold valid big at *; omega
        have v1 : valid L (2 * k.val + 1) := by unfold valid big at *; omega
        have v2 : valid L (2 * k.val + 2) := by unfold valid big at *; omega
        have v3' : valid L (2 * k.val + 3) := by unfold valid big at *; omega
        have hm0 : 2 ≤ 2 * k.val ∧ valid L (2 * k.val - 2) := ⟨by omega, by unfold valid big at *; omega⟩
        have hm1 : 2 ≤ 2 * k.val + 1 ∧ valid L (2 * k.val + 1 - 2) := ⟨by omega, by unfold valid big at *; omega⟩
        ihave S8 := (Entails.of_eq (inSlotV_pos d L fx v0)) $$ S8
        icases S8 with ⟨%g4, %hin4, F8⟩
        ihave S9 := (Entails.of_eq (inSlotV_pos d L fx v1)) $$ S9
        icases S9 with ⟨%g5, %hin5, F9⟩
        ihave S10 := (Entails.of_eq (outSlotV_pos d L fx hm0)) $$ S10
        icases S10 with ⟨%g6, F10, R6⟩
        ihave S11 := (Entails.of_eq (outSlotV_pos d L fx hm1)) $$ S11
        icases S11 with ⟨%g7, F11, R7⟩
        ihave HX := (Entails.of_eq (xSet_out (xP d L fx) k.val hk)) $$ HX
        icases HX with ⟨X2, X3, HX⟩
        ihave X2 := (Entails.of_eq (xP_pos d L fx v2)) $$ X2
        ihave X2 := (Entails.of_eq (in_congr d L (off_6 L k v2).symm (in_inb L _) (k14_off6_inb L k k14_h3) fx)) $$ X2
        ihave X3 := (Entails.of_eq (xP_pos d L fx v3')) $$ X3
        ihave X3 := (Entails.of_eq (in_congr d L (off_11 L k v3').symm (in_inb L _) (k14_off11_inb L k k14_h6) fx)) $$ X3
        ihave HOut := (Entails.of_eq (oSet_out (oMix d L fx k.val) k.val hk)) $$ HOut
        icases HOut with ⟨Y0, Y1, HOut⟩
        ihave Y0 := (Entails.of_eq ((oMix_ge d L fx (t := k.val) (n := 2 * k.val) (by omega)).trans (oP_pos (F := F) d L v0))) $$ Y0
        icases Y0 with ⟨%f0, Y0⟩
        ihave Y0 := (Entails.of_eq (out_congr d L (off_5 L k v0).symm (out_inb L _) (k14_off5_inb L k k14_h2) f0)) $$ Y0
        ihave Y1 := (Entails.of_eq ((oMix_ge d L fx (t := k.val) (n := 2 * k.val + 1) (by omega)).trans (oP_pos (F := F) d L v1))) $$ Y1
        icases Y1 with ⟨%f1, Y1⟩
        ihave Y1 := (Entails.of_eq (out_congr d L (off_10 L k v1).symm (out_inb L _) (k14_off10_inb L k k14_h5) f1)) $$ Y1
        sl_exec
        sl_for (laneV0 d L g4) $$ [F8_dst R6]
        case region =>
          intro (j : Fin k14_t2_loop.trips) _
          unfold laneV0
          iintro ⟨HA, %g, HB, %hl⟩
          sl_exec
          sl_step
          isplitl [HA]; · iexact HA
          iexists _; isplitl [HB]; · iexact HB
          ipureintro; exact lanes_step d L a4 a6 g4 g j _ _ hl
        · unfold laneV0
          isplitl [F8_dst]; · iexact F8_dst
          iexists _; isplitl [R6]; · iexact R6
          ipureintro; exact lanes_zero d L a4 a6 g4 _
        iintro %_ HI
        unfold laneV0
        icases HI with ⟨H4, %g6', H6, %hl6⟩
        have hl6 : Lanes d L a4 a6 g4 g6' 200 := Eq.mp (congrArg (Lanes d L a4 a6 g4 g6') trips2) hl6
        sl_exec
        sl_for (laneV1 d L g5) $$ [F9_dst R7]
        case region =>
          intro (j : Fin k14_t3_loop.trips) _
          unfold laneV1
          iintro ⟨HA, %g, HB, %hl⟩
          sl_exec
          sl_step
          isplitl [HA]; · iexact HA
          iexists _; isplitl [HB]; · iexact HB
          ipureintro; exact lanes_step' d L a5 a7 g5 g j _ _ hl
        · unfold laneV1
          isplitl [F9_dst]; · iexact F9_dst
          iexists _; isplitl [R7]; · iexact R7
          ipureintro; exact lanes_zero d L a5 a7 g5 _
        iintro %_ HI
        unfold laneV1
        icases HI with ⟨H5, %g7', H7, %hl7⟩
        have hl7 : Lanes d L a5 a7 g5 g7' 200 := Eq.mp (congrArg (Lanes d L a5 a7 g5 g7') trips3) hl7
        sl_exec
        sl_step
        isplitr; · iexact Hmw
        isplitl [HO]
        · iexists _; isplitr
          rotate_left
          · iexact HO
          ipureintro; intro p hp
          rcases Finset.mem_insert.mp hp with rfl | hp
          · exact .inr rfl
          rcases Finset.mem_insert.mp hp with rfl | hp
          · exact .inr rfl
          rcases Finset.mem_insert.mp hp with rfl | hp
          · exact .inr rfl
          rcases Finset.mem_insert.mp hp with rfl | hp
          · exact .inr rfl
          exact hW' p hp
        isplitl [HX F8_src F9_src]
        · iapply (Entails.of_eq (xSet_in (xP d L fx) k.val hk).symm)
          isplitl [F8_src]; · iapply (Entails.of_eq (xP_pos d L fx v0).symm); iexact F8_src
          isplitl [F9_src]; · iapply (Entails.of_eq (xP_pos d L fx v1).symm); iexact F9_src
          iexact HX
        isplitl [HOut F10_dst F11_dst]
        · iapply (Entails.of_eq (oSet_in (oMix d L fx (k.val + 1)) k.val hk (by omega)).symm)
          isplitl [F10_dst]; · iapply (Entails.of_eq ((oMix_lt d L fx (t := k.val + 1) (n := 2 * k.val - 2) (by omega)).trans (oQ_pos d L fx hm0.2)).symm); iexact F10_dst
          isplitl [F11_dst]
          · iapply (Entails.of_eq ((oMix_lt d L fx (t := k.val + 1) (n := 2 * k.val - 1) (by omega)).trans (oQ_pos d L fx (n := 2 * k.val - 1) (by have := hm1.2; rwa [show 2 * k.val + 1 - 2 = 2 * k.val - 1 by omega] at this))).symm)
            iapply (Entails.of_eq (congrArg (oqPiece d L fx) (show 2 * k.val + 1 - 2 = 2 * k.val - 1 by omega))); iexact F11_dst
          iapply (Entails.of_eq (oMix_core d L fx k.val)); iexact HOut
        isplitl [F8]
        · iapply (Entails.of_eq (congrArg (inSlotV d L fx a4 cc14_scratch4.sem) (show 2 * k.val + 2 = 2 * (k.val + 1) by ring)))
          iapply (fl_inV d L fx (off_6 L k v2) (k14_off6_inb L k k14_h3) v2 a4 cc14_scratch4.sem); iexists _, _
          isplitr
          rotate_left
          · iexact F8
          ipureintro; intro y; rfl
        isplitl [F10 H6]
        · iapply (Entails.of_eq (congrArg (outSlotV d L fx a6 cc14_scratch6.sem) (show 2 * k.val + 2 = 2 * (k.val + 1) by ring)))
          iapply (fl_outV d L fx (off_5 L k v0) (k14_off5_inb L k k14_h2) v0 a4 a6 cc14_scratch6.sem f0 g4 g6' hl6 hin4); iexists _
          isplitr
          rotate_left
          · isplitl [F10]; · iexact F10
            iexact H6
          ipureintro; intro y; rfl
        isplitl [F9]
        · iapply (Entails.of_eq (congrArg (inSlotV d L fx a5 cc14_scratch5.sem) (show 2 * k.val + 3 = 2 * (k.val + 1) + 1 by ring)))
          iapply (fl_inV d L fx (off_11 L k v3') (k14_off11_inb L k k14_h6) v3' a5 cc14_scratch5.sem); iexists _, _
          isplitr
          rotate_left
          · iexact F9
          ipureintro; intro y; rfl
        · iapply (Entails.of_eq (congrArg (outSlotV d L fx a7 cc14_scratch7.sem) (show 2 * k.val + 1 + 2 = 2 * (k.val + 1) + 1 by ring)))
          iapply (fl_outV d L fx (off_10 L k v1) (k14_off10_inb L k k14_h5) v1 a5 a7 cc14_scratch7.sem f1 g5 g7' hl7 hin5); iexists _
          isplitr
          rotate_left
          · isplitl [F11]; · iexact F11
            iexact H7
          ipureintro; intro y; rfl
      · by_cases h6 : k.val = 6
        · have hb : ¬ big L := fun hb => v3 (Or.inr ⟨by omega, hb⟩)
          -- trip 6 of a tile with fifteen pieces: no sixteenth piece to fetch
          have k14_h1 : k14_cond1 k = 1#1 := (cond1_iff k).mpr (by omega)
          have k14_h2 : k14_cond2 L k = 1#1 := cond2_iff L k
          have k14_h3 : k14_cond3 L k = 1#1 := (cond3_iff L k).mpr (by omega)
          have k14_h4 : k14_cond4 k = 1#1 := (cond4_iff k).mpr (by omega)
          have k14_h5 : k14_cond5 L k = 1#1 := (cond5_iff L k).mpr (by first | (unfold valid big at *; omega) | (unfold big at *; omega) | omega)
          have k14_h6 : ¬ k14_cond6 L k = 1#1 := fun h => absurd ((cond6_iff L k).mp h) (by first | (unfold valid big at *; omega) | (unfold big at *; omega) | omega)
          have v0 : valid L (2 * k.val) := by unfold valid big at *; omega
          have v1 : valid L (2 * k.val + 1) := by unfold valid big at *; omega
          have v2 : valid L (2 * k.val + 2) := by unfold valid big at *; omega
          have v3' : ¬ valid L (2 * k.val + 3) := by unfold valid big at *; omega
          have hm0 : 2 ≤ 2 * k.val ∧ valid L (2 * k.val - 2) := ⟨by omega, by unfold valid big at *; omega⟩
          have hm1 : 2 ≤ 2 * k.val + 1 ∧ valid L (2 * k.val + 1 - 2) := ⟨by omega, by unfold valid big at *; omega⟩
          ihave S8 := (Entails.of_eq (inSlotV_pos d L fx v0)) $$ S8
          icases S8 with ⟨%g4, %hin4, F8⟩
          ihave S9 := (Entails.of_eq (inSlotV_pos d L fx v1)) $$ S9
          icases S9 with ⟨%g5, %hin5, F9⟩
          ihave S10 := (Entails.of_eq (outSlotV_pos d L fx hm0)) $$ S10
          icases S10 with ⟨%g6, F10, R6⟩
          ihave S11 := (Entails.of_eq (outSlotV_pos d L fx hm1)) $$ S11
          icases S11 with ⟨%g7, F11, R7⟩
          ihave HX := (Entails.of_eq (xSet_out (xP d L fx) k.val hk)) $$ HX
          icases HX with ⟨X2, -, HX⟩
          ihave X2 := (Entails.of_eq (xP_pos d L fx v2)) $$ X2
          ihave X2 := (Entails.of_eq (in_congr d L (off_6 L k v2).symm (in_inb L _) (k14_off6_inb L k k14_h3) fx)) $$ X2
          ihave HOut := (Entails.of_eq (oSet_out (oMix d L fx k.val) k.val hk)) $$ HOut
          icases HOut with ⟨Y0, Y1, HOut⟩
          ihave Y0 := (Entails.of_eq ((oMix_ge d L fx (t := k.val) (n := 2 * k.val) (by omega)).trans (oP_pos (F := F) d L v0))) $$ Y0
          icases Y0 with ⟨%f0, Y0⟩
          ihave Y0 := (Entails.of_eq (out_congr d L (off_5 L k v0).symm (out_inb L _) (k14_off5_inb L k k14_h2) f0)) $$ Y0
          ihave Y1 := (Entails.of_eq ((oMix_ge d L fx (t := k.val) (n := 2 * k.val + 1) (by omega)).trans (oP_pos (F := F) d L v1))) $$ Y1
          icases Y1 with ⟨%f1, Y1⟩
          ihave Y1 := (Entails.of_eq (out_congr d L (off_10 L k v1).symm (out_inb L _) (k14_off10_inb L k k14_h5) f1)) $$ Y1
          sl_exec
          sl_for (laneV0 d L g4) $$ [F8_dst R6]
          case region =>
            intro (j : Fin k14_t2_loop.trips) _
            unfold laneV0
            iintro ⟨HA, %g, HB, %hl⟩
            sl_exec
            sl_step
            isplitl [HA]; · iexact HA
            iexists _; isplitl [HB]; · iexact HB
            ipureintro; exact lanes_step d L a4 a6 g4 g j _ _ hl
          · unfold laneV0
            isplitl [F8_dst]; · iexact F8_dst
            iexists _; isplitl [R6]; · iexact R6
            ipureintro; exact lanes_zero d L a4 a6 g4 _
          iintro %_ HI
          unfold laneV0
          icases HI with ⟨H4, %g6', H6, %hl6⟩
          have hl6 : Lanes d L a4 a6 g4 g6' 200 := Eq.mp (congrArg (Lanes d L a4 a6 g4 g6') trips2) hl6
          sl_exec
          sl_for (laneV1 d L g5) $$ [F9_dst R7]
          case region =>
            intro (j : Fin k14_t3_loop.trips) _
            unfold laneV1
            iintro ⟨HA, %g, HB, %hl⟩
            sl_exec
            sl_step
            isplitl [HA]; · iexact HA
            iexists _; isplitl [HB]; · iexact HB
            ipureintro; exact lanes_step' d L a5 a7 g5 g j _ _ hl
          · unfold laneV1
            isplitl [F9_dst]; · iexact F9_dst
            iexists _; isplitl [R7]; · iexact R7
            ipureintro; exact lanes_zero d L a5 a7 g5 _
          iintro %_ HI
          unfold laneV1
          icases HI with ⟨H5, %g7', H7, %hl7⟩
          have hl7 : Lanes d L a5 a7 g5 g7' 200 := Eq.mp (congrArg (Lanes d L a5 a7 g5 g7') trips3) hl7
          sl_exec
          sl_step
          isplitr; · iexact Hmw
          isplitl [HO]
          · iexists _; isplitr
            rotate_left
            · iexact HO
            ipureintro; intro p hp
            rcases Finset.mem_insert.mp hp with rfl | hp
            · exact .inr rfl
            rcases Finset.mem_insert.mp hp with rfl | hp
            · exact .inr rfl
            rcases Finset.mem_insert.mp hp with rfl | hp
            · exact .inr rfl
            rcases Finset.mem_insert.mp hp with rfl | hp
            · exact .inr rfl
            exact hW' p hp
          isplitl [HX F8_src F9_src]
          · iapply (Entails.of_eq (xSet_in (xP d L fx) k.val hk).symm)
            isplitl [F8_src]; · iapply (Entails.of_eq (xP_pos d L fx v0).symm); iexact F8_src
            isplitl [F9_src]; · iapply (Entails.of_eq (xP_pos d L fx v1).symm); iexact F9_src
            iexact HX
          isplitl [HOut F10_dst F11_dst]
          · iapply (Entails.of_eq (oSet_in (oMix d L fx (k.val + 1)) k.val hk (by omega)).symm)
            isplitl [F10_dst]; · iapply (Entails.of_eq ((oMix_lt d L fx (t := k.val + 1) (n := 2 * k.val - 2) (by omega)).trans (oQ_pos d L fx hm0.2)).symm); iexact F10_dst
            isplitl [F11_dst]
            · iapply (Entails.of_eq ((oMix_lt d L fx (t := k.val + 1) (n := 2 * k.val - 1) (by omega)).trans (oQ_pos d L fx (n := 2 * k.val - 1) (by have := hm1.2; rwa [show 2 * k.val + 1 - 2 = 2 * k.val - 1 by omega] at this))).symm)
              iapply (Entails.of_eq (congrArg (oqPiece d L fx) (show 2 * k.val + 1 - 2 = 2 * k.val - 1 by omega))); iexact F11_dst
            iapply (Entails.of_eq (oMix_core d L fx k.val)); iexact HOut
          isplitl [F8]
          · iapply (Entails.of_eq (congrArg (inSlotV d L fx a4 cc14_scratch4.sem) (show 2 * k.val + 2 = 2 * (k.val + 1) by ring)))
            iapply (fl_inV d L fx (off_6 L k v2) (k14_off6_inb L k k14_h3) v2 a4 cc14_scratch4.sem); iexists _, _
            isplitr
            rotate_left
            · iexact F8
            ipureintro; intro y; rfl
          isplitl [F10 H6]
          · iapply (Entails.of_eq (congrArg (outSlotV d L fx a6 cc14_scratch6.sem) (show 2 * k.val + 2 = 2 * (k.val + 1) by ring)))
            iapply (fl_outV d L fx (off_5 L k v0) (k14_off5_inb L k k14_h2) v0 a4 a6 cc14_scratch6.sem f0 g4 g6' hl6 hin4); iexists _
            isplitr
            rotate_left
            · isplitl [F10]; · iexact F10
              iexact H6
            ipureintro; intro y; rfl
          isplitl [H5 F9]
          · iapply (Entails.of_eq (congrArg (inSlotV d L fx a5 cc14_scratch5.sem) (show 2 * k.val + 3 = 2 * (k.val + 1) + 1 by ring)))
            iapply (Entails.of_eq (inSlotV_neg d L fx v3').symm)
            isplitl [H5]; · iexists _; iexact H5
            iexact F9
          · iapply (Entails.of_eq (congrArg (outSlotV d L fx a7 cc14_scratch7.sem) (show 2 * k.val + 1 + 2 = 2 * (k.val + 1) + 1 by ring)))
            iapply (fl_outV d L fx (off_10 L k v1) (k14_off10_inb L k k14_h5) v1 a5 a7 cc14_scratch7.sem f1 g5 g7' hl7 hin5); iexists _
            isplitr
            rotate_left
            · isplitl [F11]; · iexact F11
              iexact H7
            ipureintro; intro y; rfl
        · have h7 : k.val = 7 := by unfold valid at v3; omega
          by_cases hb : big L
          · -- the last trip of a tile with sixteen pieces: nothing more to fetch
            have k14_h1 : k14_cond1 k = 1#1 := (cond1_iff k).mpr (by omega)
            have k14_h2 : k14_cond2 L k = 1#1 := cond2_iff L k
            have k14_h3 : ¬ k14_cond3 L k = 1#1 := fun h => absurd ((cond3_iff L k).mp h) (by omega)
            have k14_h4 : k14_cond4 k = 1#1 := (cond4_iff k).mpr (by omega)
            have k14_h5 : k14_cond5 L k = 1#1 := (cond5_iff L k).mpr (by first | (unfold valid big at *; omega) | (unfold big at *; omega) | omega)
            have k14_h6 : ¬ k14_cond6 L k = 1#1 := fun h => absurd ((cond6_iff L k).mp h) (by first | (unfold valid big at *; omega) | (unfold big at *; omega) | omega)
            have v0 : valid L (2 * k.val) := by unfold valid big at *; omega
            have v1 : valid L (2 * k.val + 1) := by unfold valid big at *; omega
            have v2 : ¬ valid L (2 * k.val + 2) := by unfold valid big at *; omega
            have v3' : ¬ valid L (2 * k.val + 3) := by unfold valid big at *; omega
            have hm0 : 2 ≤ 2 * k.val ∧ valid L (2 * k.val - 2) := ⟨by omega, by unfold valid big at *; omega⟩
            have hm1 : 2 ≤ 2 * k.val + 1 ∧ valid L (2 * k.val + 1 - 2) := ⟨by omega, by unfold valid big at *; omega⟩
            ihave S8 := (Entails.of_eq (inSlotV_pos d L fx v0)) $$ S8
            icases S8 with ⟨%g4, %hin4, F8⟩
            ihave S9 := (Entails.of_eq (inSlotV_pos d L fx v1)) $$ S9
            icases S9 with ⟨%g5, %hin5, F9⟩
            ihave S10 := (Entails.of_eq (outSlotV_pos d L fx hm0)) $$ S10
            icases S10 with ⟨%g6, F10, R6⟩
            ihave S11 := (Entails.of_eq (outSlotV_pos d L fx hm1)) $$ S11
            icases S11 with ⟨%g7, F11, R7⟩
            ihave HX := (Entails.of_eq (xSet_out (xP d L fx) k.val hk)) $$ HX
            icases HX with ⟨-, -, HX⟩
            ihave HOut := (Entails.of_eq (oSet_out (oMix d L fx k.val) k.val hk)) $$ HOut
            icases HOut with ⟨Y0, Y1, HOut⟩
            ihave Y0 := (Entails.of_eq ((oMix_ge d L fx (t := k.val) (n := 2 * k.val) (by omega)).trans (oP_pos (F := F) d L v0))) $$ Y0
            icases Y0 with ⟨%f0, Y0⟩
            ihave Y0 := (Entails.of_eq (out_congr d L (off_5 L k v0).symm (out_inb L _) (k14_off5_inb L k k14_h2) f0)) $$ Y0
            ihave Y1 := (Entails.of_eq ((oMix_ge d L fx (t := k.val) (n := 2 * k.val + 1) (by omega)).trans (oP_pos (F := F) d L v1))) $$ Y1
            icases Y1 with ⟨%f1, Y1⟩
            ihave Y1 := (Entails.of_eq (out_congr d L (off_10 L k v1).symm (out_inb L _) (k14_off10_inb L k k14_h5) f1)) $$ Y1
            sl_exec
            sl_for (laneV0 d L g4) $$ [F8_dst R6]
            case region =>
              intro (j : Fin k14_t2_loop.trips) _
              unfold laneV0
              iintro ⟨HA, %g, HB, %hl⟩
              sl_exec
              sl_step
              isplitl [HA]; · iexact HA
              iexists _; isplitl [HB]; · iexact HB
              ipureintro; exact lanes_step d L a4 a6 g4 g j _ _ hl
            · unfold laneV0
              isplitl [F8_dst]; · iexact F8_dst
              iexists _; isplitl [R6]; · iexact R6
              ipureintro; exact lanes_zero d L a4 a6 g4 _
            iintro %_ HI
            unfold laneV0
            icases HI with ⟨H4, %g6', H6, %hl6⟩
            have hl6 : Lanes d L a4 a6 g4 g6' 200 := Eq.mp (congrArg (Lanes d L a4 a6 g4 g6') trips2) hl6
            sl_exec
            sl_for (laneV1 d L g5) $$ [F9_dst R7]
            case region =>
              intro (j : Fin k14_t3_loop.trips) _
              unfold laneV1
              iintro ⟨HA, %g, HB, %hl⟩
              sl_exec
              sl_step
              isplitl [HA]; · iexact HA
              iexists _; isplitl [HB]; · iexact HB
              ipureintro; exact lanes_step' d L a5 a7 g5 g j _ _ hl
            · unfold laneV1
              isplitl [F9_dst]; · iexact F9_dst
              iexists _; isplitl [R7]; · iexact R7
              ipureintro; exact lanes_zero d L a5 a7 g5 _
            iintro %_ HI
            unfold laneV1
            icases HI with ⟨H5, %g7', H7, %hl7⟩
            have hl7 : Lanes d L a5 a7 g5 g7' 200 := Eq.mp (congrArg (Lanes d L a5 a7 g5 g7') trips3) hl7
            sl_exec
            sl_step
            isplitr; · iexact Hmw
            isplitl [HO]
            · iexists _; isplitr
              rotate_left
              · iexact HO
              ipureintro; intro p hp
              rcases Finset.mem_insert.mp hp with rfl | hp
              · exact .inr rfl
              rcases Finset.mem_insert.mp hp with rfl | hp
              · exact .inr rfl
              rcases Finset.mem_insert.mp hp with rfl | hp
              · exact .inr rfl
              rcases Finset.mem_insert.mp hp with rfl | hp
              · exact .inr rfl
              exact hW' p hp
            isplitl [HX F8_src F9_src]
            · iapply (Entails.of_eq (xSet_in (xP d L fx) k.val hk).symm)
              isplitl [F8_src]; · iapply (Entails.of_eq (xP_pos d L fx v0).symm); iexact F8_src
              isplitl [F9_src]; · iapply (Entails.of_eq (xP_pos d L fx v1).symm); iexact F9_src
              iexact HX
            isplitl [HOut F10_dst F11_dst]
            · iapply (Entails.of_eq (oSet_in (oMix d L fx (k.val + 1)) k.val hk (by omega)).symm)
              isplitl [F10_dst]; · iapply (Entails.of_eq ((oMix_lt d L fx (t := k.val + 1) (n := 2 * k.val - 2) (by omega)).trans (oQ_pos d L fx hm0.2)).symm); iexact F10_dst
              isplitl [F11_dst]
              · iapply (Entails.of_eq ((oMix_lt d L fx (t := k.val + 1) (n := 2 * k.val - 1) (by omega)).trans (oQ_pos d L fx (n := 2 * k.val - 1) (by have := hm1.2; rwa [show 2 * k.val + 1 - 2 = 2 * k.val - 1 by omega] at this))).symm)
                iapply (Entails.of_eq (congrArg (oqPiece d L fx) (show 2 * k.val + 1 - 2 = 2 * k.val - 1 by omega))); iexact F11_dst
              iapply (Entails.of_eq (oMix_core d L fx k.val)); iexact HOut
            isplitl [H4 F8]
            · iapply (Entails.of_eq (congrArg (inSlotV d L fx a4 cc14_scratch4.sem) (show 2 * k.val + 2 = 2 * (k.val + 1) by ring)))
              iapply (Entails.of_eq (inSlotV_neg d L fx v2).symm)
              isplitl [H4]; · iexists _; iexact H4
              iexact F8
            isplitl [F10 H6]
            · iapply (Entails.of_eq (congrArg (outSlotV d L fx a6 cc14_scratch6.sem) (show 2 * k.val + 2 = 2 * (k.val + 1) by ring)))
              iapply (fl_outV d L fx (off_5 L k v0) (k14_off5_inb L k k14_h2) v0 a4 a6 cc14_scratch6.sem f0 g4 g6' hl6 hin4); iexists _
              isplitr
              rotate_left
              · isplitl [F10]; · iexact F10
                iexact H6
              ipureintro; intro y; rfl
            isplitl [H5 F9]
            · iapply (Entails.of_eq (congrArg (inSlotV d L fx a5 cc14_scratch5.sem) (show 2 * k.val + 3 = 2 * (k.val + 1) + 1 by ring)))
              iapply (Entails.of_eq (inSlotV_neg d L fx v3').symm)
              isplitl [H5]; · iexists _; iexact H5
              iexact F9
            · iapply (Entails.of_eq (congrArg (outSlotV d L fx a7 cc14_scratch7.sem) (show 2 * k.val + 1 + 2 = 2 * (k.val + 1) + 1 by ring)))
              iapply (fl_outV d L fx (off_10 L k v1) (k14_off10_inb L k k14_h5) v1 a5 a7 cc14_scratch7.sem f1 g5 g7' hl7 hin5); iexists _
              isplitr
              rotate_left
              · isplitl [F11]; · iexact F11
                iexact H7
              ipureintro; intro y; rfl
          · -- the last trip of a tile with fifteen pieces: the second slot only drains
            have k14_h1 : k14_cond1 k = 1#1 := (cond1_iff k).mpr (by omega)
            have k14_h2 : k14_cond2 L k = 1#1 := cond2_iff L k
            have k14_h3 : ¬ k14_cond3 L k = 1#1 := fun h => absurd ((cond3_iff L k).mp h) (by omega)
            have k14_h4 : k14_cond4 k = 1#1 := (cond4_iff k).mpr (by omega)
            have k14_h5 : ¬ k14_cond5 L k = 1#1 := fun h => absurd ((cond5_iff L k).mp h) (by first | (unfold valid big at *; omega) | (unfold big at *; omega) | omega)
            have k14_h6 : ¬ k14_cond6 L k = 1#1 := fun h => absurd ((cond6_iff L k).mp h) (by first | (unfold valid big at *; omega) | (unfold big at *; omega) | omega)
            have v0 : valid L (2 * k.val) := by unfold valid big at *; omega
            have v1 : ¬ valid L (2 * k.val + 1) := by unfold valid big at *; omega
            have v2 : ¬ valid L (2 * k.val + 2) := by unfold valid big at *; omega
            have v3' : ¬ valid L (2 * k.val + 3) := by unfold valid big at *; omega
            have hm0 : 2 ≤ 2 * k.val ∧ valid L (2 * k.val - 2) := ⟨by omega, by unfold valid big at *; omega⟩
            have hm1 : 2 ≤ 2 * k.val + 1 ∧ valid L (2 * k.val + 1 - 2) := ⟨by omega, by unfold valid big at *; omega⟩
            ihave S8 := (Entails.of_eq (inSlotV_pos d L fx v0)) $$ S8
            icases S8 with ⟨%g4, %hin4, F8⟩
            ihave S9 := (Entails.of_eq (inSlotV_neg d L fx v1)) $$ S9
            icases S9 with ⟨⟨%g5, H5⟩, F9⟩
            ihave S10 := (Entails.of_eq (outSlotV_pos d L fx hm0)) $$ S10
            icases S10 with ⟨%g6, F10, R6⟩
            ihave S11 := (Entails.of_eq (outSlotV_pos d L fx hm1)) $$ S11
            icases S11 with ⟨%g7, F11, R7⟩
            ihave HX := (Entails.of_eq (xSet_out (xP d L fx) k.val hk)) $$ HX
            icases HX with ⟨-, -, HX⟩
            ihave HOut := (Entails.of_eq (oSet_out (oMix d L fx k.val) k.val hk)) $$ HOut
            icases HOut with ⟨Y0, -, HOut⟩
            ihave Y0 := (Entails.of_eq ((oMix_ge d L fx (t := k.val) (n := 2 * k.val) (by omega)).trans (oP_pos (F := F) d L v0))) $$ Y0
            icases Y0 with ⟨%f0, Y0⟩
            ihave Y0 := (Entails.of_eq (out_congr d L (off_5 L k v0).symm (out_inb L _) (k14_off5_inb L k k14_h2) f0)) $$ Y0
            sl_exec
            sl_for (laneV0 d L g4) $$ [F8_dst R6]
            case region =>
              intro (j : Fin k14_t2_loop.trips) _
              unfold laneV0
              iintro ⟨HA, %g, HB, %hl⟩
              sl_exec
              sl_step
              isplitl [HA]; · iexact HA
              iexists _; isplitl [HB]; · iexact HB
              ipureintro; exact lanes_step d L a4 a6 g4 g j _ _ hl
            · unfold laneV0
              isplitl [F8_dst]; · iexact F8_dst
              iexists _; isplitl [R6]; · iexact R6
              ipureintro; exact lanes_zero d L a4 a6 g4 _
            iintro %_ HI
            unfold laneV0
            icases HI with ⟨H4, %g6', H6, %hl6⟩
            have hl6 : Lanes d L a4 a6 g4 g6' 200 := Eq.mp (congrArg (Lanes d L a4 a6 g4 g6') trips2) hl6
            sl_exec
            sl_step
            isplitr; · iexact Hmw
            isplitl [HO]
            · iexists _; isplitr
              rotate_left
              · iexact HO
              ipureintro; intro p hp
              rcases Finset.mem_insert.mp hp with rfl | hp
              · exact .inr rfl
              rcases Finset.mem_insert.mp hp with rfl | hp
              · exact .inr rfl
              rcases Finset.mem_insert.mp hp with rfl | hp
              · exact .inr rfl
              exact hW' p hp
            isplitl [HX F8_src]
            · iapply (Entails.of_eq (xSet_in (xP d L fx) k.val hk).symm)
              isplitl [F8_src]; · iapply (Entails.of_eq (xP_pos d L fx v0).symm); iexact F8_src
              isplitr; · iapply (Entails.of_eq (xP_neg d L fx v1).symm); iempintro
              iexact HX
            isplitl [HOut F10_dst F11_dst]
            · iapply (Entails.of_eq (oSet_in (oMix d L fx (k.val + 1)) k.val hk (by omega)).symm)
              isplitl [F10_dst]; · iapply (Entails.of_eq ((oMix_lt d L fx (t := k.val + 1) (n := 2 * k.val - 2) (by omega)).trans (oQ_pos d L fx hm0.2)).symm); iexact F10_dst
              isplitl [F11_dst]
              · iapply (Entails.of_eq ((oMix_lt d L fx (t := k.val + 1) (n := 2 * k.val - 1) (by omega)).trans (oQ_pos d L fx (n := 2 * k.val - 1) (by have := hm1.2; rwa [show 2 * k.val + 1 - 2 = 2 * k.val - 1 by omega] at this))).symm)
                iapply (Entails.of_eq (congrArg (oqPiece d L fx) (show 2 * k.val + 1 - 2 = 2 * k.val - 1 by omega))); iexact F11_dst
              iapply (Entails.of_eq (oMix_core d L fx k.val)); iexact HOut
            isplitl [H4 F8]
            · iapply (Entails.of_eq (congrArg (inSlotV d L fx a4 cc14_scratch4.sem) (show 2 * k.val + 2 = 2 * (k.val + 1) by ring)))
              iapply (Entails.of_eq (inSlotV_neg d L fx v2).symm)
              isplitl [H4]; · iexists _; iexact H4
              iexact F8
            isplitl [F10 H6]
            · iapply (Entails.of_eq (congrArg (outSlotV d L fx a6 cc14_scratch6.sem) (show 2 * k.val + 2 = 2 * (k.val + 1) by ring)))
              iapply (fl_outV d L fx (off_5 L k v0) (k14_off5_inb L k k14_h2) v0 a4 a6 cc14_scratch6.sem f0 g4 g6' hl6 hin4); iexists _
              isplitr
              rotate_left
              · isplitl [F10]; · iexact F10
                iexact H6
              ipureintro; intro y; rfl
            isplitl [H5 F9]
            · iapply (Entails.of_eq (congrArg (inSlotV d L fx a5 cc14_scratch5.sem) (show 2 * k.val + 3 = 2 * (k.val + 1) + 1 by ring)))
              iapply (Entails.of_eq (inSlotV_neg d L fx v3').symm)
              isplitl [H5]; · iexists _; iexact H5
              iexact F9
            · iapply (Entails.of_eq (outSlotV_neg d L fx (m := 2 * (k.val + 1) + 1) (by intro h; apply v1; have := h.2; rwa [show 2 * (k.val + 1) + 1 - 2 = 2 * k.val + 1 by omega] at this)).symm)
              isplitl [R7]; · iexists _; iexact R7
              iexact F11
    · have hk0 : k.val = 0 := by omega
      -- the first trip: nothing to drain
      have k14_h1 : ¬ k14_cond1 k = 1#1 := fun h => absurd ((cond1_iff k).mp h) (by omega)
      have k14_h2 : k14_cond2 L k = 1#1 := cond2_iff L k
      have k14_h3 : k14_cond3 L k = 1#1 := (cond3_iff L k).mpr (by omega)
      have k14_h4 : ¬ k14_cond4 k = 1#1 := fun h => absurd ((cond4_iff k).mp h) (by omega)
      have k14_h5 : k14_cond5 L k = 1#1 := (cond5_iff L k).mpr (by first | (unfold valid big at *; omega) | (unfold big at *; omega) | omega)
      have k14_h6 : k14_cond6 L k = 1#1 := (cond6_iff L k).mpr (by first | (unfold valid big at *; omega) | (unfold big at *; omega) | omega)
      have v0 : valid L (2 * k.val) := by unfold valid big at *; omega
      have v1 : valid L (2 * k.val + 1) := by unfold valid big at *; omega
      have v2 : valid L (2 * k.val + 2) := by unfold valid big at *; omega
      have v3' : valid L (2 * k.val + 3) := by unfold valid big at *; omega
      have hm0 : ¬ (2 ≤ 2 * k.val ∧ valid L (2 * k.val - 2)) := by omega
      have hm1 : ¬ (2 ≤ 2 * k.val + 1 ∧ valid L (2 * k.val + 1 - 2)) := by omega
      ihave S8 := (Entails.of_eq (inSlotV_pos d L fx v0)) $$ S8
      icases S8 with ⟨%g4, %hin4, F8⟩
      ihave S9 := (Entails.of_eq (inSlotV_pos d L fx v1)) $$ S9
      icases S9 with ⟨%g5, %hin5, F9⟩
      ihave S10 := (Entails.of_eq (outSlotV_neg d L fx hm0)) $$ S10
      icases S10 with ⟨⟨%g6, R6⟩, F10⟩
      ihave S11 := (Entails.of_eq (outSlotV_neg d L fx hm1)) $$ S11
      icases S11 with ⟨⟨%g7, R7⟩, F11⟩
      ihave HX := (Entails.of_eq (xSet_out (xP d L fx) k.val hk)) $$ HX
      icases HX with ⟨X2, X3, HX⟩
      ihave X2 := (Entails.of_eq (xP_pos d L fx v2)) $$ X2
      ihave X2 := (Entails.of_eq (in_congr d L (off_6 L k v2).symm (in_inb L _) (k14_off6_inb L k k14_h3) fx)) $$ X2
      ihave X3 := (Entails.of_eq (xP_pos d L fx v3')) $$ X3
      ihave X3 := (Entails.of_eq (in_congr d L (off_11 L k v3').symm (in_inb L _) (k14_off11_inb L k k14_h6) fx)) $$ X3
      ihave HOut := (Entails.of_eq (oSet_out (oMix d L fx k.val) k.val hk)) $$ HOut
      icases HOut with ⟨Y0, Y1, HOut⟩
      ihave Y0 := (Entails.of_eq ((oMix_ge d L fx (t := k.val) (n := 2 * k.val) (by omega)).trans (oP_pos (F := F) d L v0))) $$ Y0
      icases Y0 with ⟨%f0, Y0⟩
      ihave Y0 := (Entails.of_eq (out_congr d L (off_5 L k v0).symm (out_inb L _) (k14_off5_inb L k k14_h2) f0)) $$ Y0
      ihave Y1 := (Entails.of_eq ((oMix_ge d L fx (t := k.val) (n := 2 * k.val + 1) (by omega)).trans (oP_pos (F := F) d L v1))) $$ Y1
      icases Y1 with ⟨%f1, Y1⟩
      ihave Y1 := (Entails.of_eq (out_congr d L (off_10 L k v1).symm (out_inb L _) (k14_off10_inb L k k14_h5) f1)) $$ Y1
      sl_exec
      sl_for (laneV0 d L g4) $$ [F8_dst R6]
      case region =>
        intro (j : Fin k14_t2_loop.trips) _
        unfold laneV0
        iintro ⟨HA, %g, HB, %hl⟩
        sl_exec
        sl_step
        isplitl [HA]; · iexact HA
        iexists _; isplitl [HB]; · iexact HB
        ipureintro; exact lanes_step d L a4 a6 g4 g j _ _ hl
      · unfold laneV0
        isplitl [F8_dst]; · iexact F8_dst
        iexists _; isplitl [R6]; · iexact R6
        ipureintro; exact lanes_zero d L a4 a6 g4 _
      iintro %_ HI
      unfold laneV0
      icases HI with ⟨H4, %g6', H6, %hl6⟩
      have hl6 : Lanes d L a4 a6 g4 g6' 200 := Eq.mp (congrArg (Lanes d L a4 a6 g4 g6') trips2) hl6
      sl_exec
      sl_for (laneV1 d L g5) $$ [F9_dst R7]
      case region =>
        intro (j : Fin k14_t3_loop.trips) _
        unfold laneV1
        iintro ⟨HA, %g, HB, %hl⟩
        sl_exec
        sl_step
        isplitl [HA]; · iexact HA
        iexists _; isplitl [HB]; · iexact HB
        ipureintro; exact lanes_step' d L a5 a7 g5 g j _ _ hl
      · unfold laneV1
        isplitl [F9_dst]; · iexact F9_dst
        iexists _; isplitl [R7]; · iexact R7
        ipureintro; exact lanes_zero d L a5 a7 g5 _
      iintro %_ HI
      unfold laneV1
      icases HI with ⟨H5, %g7', H7, %hl7⟩
      have hl7 : Lanes d L a5 a7 g5 g7' 200 := Eq.mp (congrArg (Lanes d L a5 a7 g5 g7') trips3) hl7
      sl_exec
      sl_step
      isplitr; · iexact Hmw
      isplitl [HO]
      · iexists _; isplitr
        rotate_left
        · iexact HO
        ipureintro; intro p hp
        rcases Finset.mem_insert.mp hp with rfl | hp
        · exact .inr rfl
        rcases Finset.mem_insert.mp hp with rfl | hp
        · exact .inr rfl
        exact hW' p hp
      isplitl [HX F8_src F9_src]
      · iapply (Entails.of_eq (xSet_in (xP d L fx) k.val hk).symm)
        isplitl [F8_src]; · iapply (Entails.of_eq (xP_pos d L fx v0).symm); iexact F8_src
        isplitl [F9_src]; · iapply (Entails.of_eq (xP_pos d L fx v1).symm); iexact F9_src
        iexact HX
      isplitl [HOut]
      · iapply (Entails.of_eq (congrArg (fun s => bigSep s (oMix d L fx (k.val + 1))) (show oCore k.val = oSet (k.val + 1) by rw [hk0]; decide)))
        iapply (Entails.of_eq (oMix_core d L fx k.val)); iexact HOut
      isplitl [F8]
      · iapply (Entails.of_eq (congrArg (inSlotV d L fx a4 cc14_scratch4.sem) (show 2 * k.val + 2 = 2 * (k.val + 1) by ring)))
        iapply (fl_inV d L fx (off_6 L k v2) (k14_off6_inb L k k14_h3) v2 a4 cc14_scratch4.sem); iexists _, _
        isplitr
        rotate_left
        · iexact F8
        ipureintro; intro y; rfl
      isplitl [F10 H6]
      · iapply (Entails.of_eq (congrArg (outSlotV d L fx a6 cc14_scratch6.sem) (show 2 * k.val + 2 = 2 * (k.val + 1) by ring)))
        iapply (fl_outV d L fx (off_5 L k v0) (k14_off5_inb L k k14_h2) v0 a4 a6 cc14_scratch6.sem f0 g4 g6' hl6 hin4); iexists _
        isplitr
        rotate_left
        · isplitl [F10]; · iexact F10
          iexact H6
        ipureintro; intro y; rfl
      isplitl [F9]
      · iapply (Entails.of_eq (congrArg (inSlotV d L fx a5 cc14_scratch5.sem) (show 2 * k.val + 3 = 2 * (k.val + 1) + 1 by ring)))
        iapply (fl_inV d L fx (off_11 L k v3') (k14_off11_inb L k k14_h6) v3' a5 cc14_scratch5.sem); iexists _, _
        isplitr
        rotate_left
        · iexact F9
        ipureintro; intro y; rfl
      · iapply (Entails.of_eq (congrArg (outSlotV d L fx a7 cc14_scratch7.sem) (show 2 * k.val + 1 + 2 = 2 * (k.val + 1) + 1 by ring)))
        iapply (fl_outV d L fx (off_10 L k v1) (k14_off10_inb L k k14_h5) v1 a5 a7 cc14_scratch7.sem f1 g5 g7' hl7 hin5); iexists _
        isplitr
        rotate_left
        · isplitl [F11]; · iexact F11
          iexact H7
        ipureintro; intro y; rfl
  · unfold invV
    isplitr; · iexact Hmw
    isplitl [HO]
    · iexists W; isplitr
      · ipureintro; exact fun p hp => .inl hp
      · iexact HO
    isplitl [HX]; · iexact HX
    isplitl [HOut]; · iapply (Entails.of_eq (oMix_zero d L fx).symm); iexact HOut
    isplitl [S8]; · iexact S8
    isplitl [H6 Hs10]
    · rw [outSlotV_neg d L fx (by omega)]; isplitl [H6]; · iexists _; iexact H6
      iexact Hs10
    isplitl [S9]; · iexact S9
    rw [outSlotV_neg d L fx (by omega)]; isplitl [H7]; · iexists _; iexact H7
    iexact Hs11
  iintro %acc' HI
  ihave HI := (Entails.of_eq (congrArg (fun t => invV d L O W fx t acc') trips1)) $$ HI
  unfold invV
  icases HI with ⟨-, ⟨%W', %hW', HO⟩, HX, HOut, S8, S10, S9, S11⟩
  have nv16 : ¬ valid L (2 * 8) := by unfold valid; omega
  have nv17 : ¬ valid L (2 * 8 + 1) := by unfold valid; omega
  have hm14 : 2 ≤ 2 * 8 ∧ valid L (2 * 8 - 2) := ⟨by omega, Or.inl (by omega)⟩
  ihave S8 := (Entails.of_eq (inSlotV_neg d L fx nv16)) $$ S8
  icases S8 with ⟨⟨%g4', H4⟩, Hs8⟩
  ihave S9 := (Entails.of_eq (inSlotV_neg d L fx nv17)) $$ S9
  icases S9 with ⟨⟨%g5', H5⟩, Hs9⟩
  ihave S10 := (Entails.of_eq (outSlotV_pos d L fx hm14)) $$ S10
  icases S10 with ⟨%g6', F10, R6⟩
  by_cases hb : big L
  · have k14_h8 : k14_cond8 L = 1#1 := (cond8_iff L).mpr hb
    have hm15 : 2 ≤ 2 * 8 + 1 ∧ valid L (2 * 8 + 1 - 2) := ⟨by omega, Or.inr ⟨by omega, hb⟩⟩
    ihave S11 := (Entails.of_eq (outSlotV_pos d L fx hm15)) $$ S11
    icases S11 with ⟨%g7', F11, R7⟩
    sl_exec
    sl_step
    isplitl [HX]; · iapply (xRange_end d L fx); iexact HX
    isplitl [HOut F10_dst F11_dst]
    · iapply (Entails.of_eq (oRange_end (oQ d L fx)).symm)
      isplitl [F10_dst]; · iapply (Entails.of_eq (oQ_pos d L fx hm14.2).symm); iexact F10_dst
      isplitl [F11_dst]; · iapply (Entails.of_eq (oQ_pos d L fx hm15.2).symm); iexact F11_dst
      iapply (Entails.of_eq (oMix_end d L fx)); iexact HOut
    isplitl [H4]; · iexists _; iexact H4
    isplitl [H5]; · iexists _; iexact H5
    isplitl [R6]; · iexists _; iexact R6
    isplitl [R7]; · iexists _; iexact R7
    isplitl [Hs8]; · iexact Hs8
    isplitl [Hs9]; · iexact Hs9
    isplitl [F10]; · iexact F10
    isplitl [F11]; · iexact F11
    isplitl [HO]
    · iexists _; isplitr
      rotate_left
      · iexact HO
      ipureintro; intro p hp
      rcases Finset.mem_insert.mp hp with rfl | hp
      · exact .inr rfl
      rcases Finset.mem_insert.mp hp with rfl | hp
      · exact .inr rfl
      exact hW' p hp
    iexact HR
  · have k14_h8 : ¬ k14_cond8 L = 1#1 := fun h => hb ((cond8_iff L).mp h)
    have hm15 : ¬ (2 ≤ 2 * 8 + 1 ∧ valid L (2 * 8 + 1 - 2)) := by intro h; have := h.2; unfold valid at this; omega
    ihave S11 := (Entails.of_eq (outSlotV_neg d L fx hm15)) $$ S11
    icases S11 with ⟨⟨%g7', R7⟩, F11⟩
    sl_exec
    sl_step
    isplitl [HX]; · iapply (xRange_end d L fx); iexact HX
    isplitl [HOut F10_dst]
    · iapply (Entails.of_eq (oRange_end (oQ d L fx)).symm)
      isplitl [F10_dst]; · iapply (Entails.of_eq (oQ_pos d L fx hm14.2).symm); iexact F10_dst
      isplitr; · iapply (Entails.of_eq (oQ_neg d L fx (n := 15) (by unfold valid; omega)).symm); iempintro
      iapply (Entails.of_eq (oMix_end d L fx)); iexact HOut
    isplitl [H4]; · iexists _; iexact H4
    isplitl [H5]; · iexists _; iexact H5
    isplitl [R6]; · iexists _; iexact R6
    isplitl [R7]; · iexists _; iexact R7
    isplitl [Hs8]; · iexact Hs8
    isplitl [Hs9]; · iexact Hs9
    isplitl [F10]; · iexact F10
    isplitl [F11]; · iexact F11
    isplitl [HO]
    · iexists _; isplitr
      rotate_left
      · iexact HO
      ipureintro; intro p hp
      rcases Finset.mem_insert.mp hp with rfl | hp
      · exact .inr rfl
      exact hW' p hp
    iexact HR

/-! The subcore's scoped storage: the four staging buffers and the four semaphores of this call, and the rest. -/

abbrev c8 : GSem nD τ sig := (thr d L, SemLoc.dma cc14_scratch4.sem)
abbrev c9 : GSem nD τ sig := (thr d L, SemLoc.dma cc14_scratch5.sem)
abbrev c10 : GSem nD τ sig := (thr d L, SemLoc.dma cc14_scratch6.sem)
abbrev c11 : GSem nD τ sig := (thr d L, SemLoc.dma cc14_scratch7.sem)

omit [FloatOps F] in
theorem ownSems0_V :
    (ownSems0 (thr d L) : sProp 𝕄)
      = iprop(semVal (c8 d L) 0 ∗ semVal (c9 d L) 0 ∗ semVal (c10 d L) 0 ∗ semVal (c11 d L) 0
          ∗ bigSep (((((ownCells (thr d L)).erase (c8 d L)).erase (c9 d L)).erase (c10 d L)).erase (c11 d L)) fun g => semVal g 0) := by
  unfold SparseCore.Cfg.ownSems0
  rw [SparseCore.bigSep_erase' ((mem_ownCells (g := c8 d L)).mpr ⟨rfl, by
      show (SemLoc.dma cc14_scratch4.sem : SemLoc sig).isScoped .scVector = true; decide⟩),
    SparseCore.bigSep_erase' (Finset.mem_erase.mpr ⟨fun e => absurd (Prod.mk.inj e).2 (by decide), (mem_ownCells (g := c9 d L)).mpr ⟨rfl, by
      show (SemLoc.dma cc14_scratch5.sem : SemLoc sig).isScoped .scVector = true; decide⟩⟩),
    SparseCore.bigSep_erase' (Finset.mem_erase.mpr ⟨fun e => absurd (Prod.mk.inj e).2 (by decide), Finset.mem_erase.mpr ⟨fun e => absurd (Prod.mk.inj e).2 (by decide),
      (mem_ownCells (g := c10 d L)).mpr ⟨rfl, by show (SemLoc.dma cc14_scratch6.sem : SemLoc sig).isScoped .scVector = true; decide⟩⟩⟩),
    SparseCore.bigSep_erase' (Finset.mem_erase.mpr ⟨fun e => absurd (Prod.mk.inj e).2 (by decide), Finset.mem_erase.mpr ⟨fun e => absurd (Prod.mk.inj e).2 (by decide),
      Finset.mem_erase.mpr ⟨fun e => absurd (Prod.mk.inj e).2 (by decide),
      (mem_ownCells (g := c11 d L)).mpr ⟨rfl, by show (SemLoc.dma cc14_scratch7.sem : SemLoc sig).isScoped .scVector = true; decide⟩⟩⟩⟩)]

abbrev pV (L : grid14.Coords) : Proc τ := Proc.scVector (cV L) (jV L)

omit [FloatOps F] in
theorem ownBufs_V :
    (ownBufs (thr d L) : sProp 𝕄)
      = iprop((∃ f, (thr d L).loc cc14_scratch0 ↦{fullShare} f) ∗ (∃ f, (thr d L).loc cc14_scratch1 ↦{fullShare} f)
          ∗ (∃ f, (thr d L).loc cc14_scratch2 ↦{fullShare} f) ∗ (∃ f, (thr d L).loc cc14_scratch3 ↦{fullShare} f)
          ∗ bigSep (((((ownRefs (τ := τ) (pV L)).erase ((pV L).devRef cc14_scratch0)).erase ((pV L).devRef cc14_scratch1)).erase
              ((pV L).devRef cc14_scratch2)).erase ((pV L).devRef cc14_scratch3))
              fun b => iprop(∃ f, ((d, b) : Loc nD τ sig) ↦{fullShare} f)) := by
  unfold SparseCore.Cfg.ownBufs
  refine (SparseCore.bigSep_erase' (SparseCore.Cfg.mem_ownRefs_of_owner (p := pV L) (b := (pV L).devRef cc14_scratch0) rfl)).trans ?_
  rw [SparseCore.bigSep_erase' (Finset.mem_erase.mpr ⟨fun e => absurd (Proc.devRef_injective _ e) (show (cc14_scratch1 : Ref sig .scVector) ≠ cc14_scratch0 by decide),
      SparseCore.Cfg.mem_ownRefs_of_owner (p := pV L) (b := (pV L).devRef cc14_scratch1) rfl⟩),
    SparseCore.bigSep_erase' (Finset.mem_erase.mpr ⟨fun e => absurd (Proc.devRef_injective _ e) (show (cc14_scratch2 : Ref sig .scVector) ≠ cc14_scratch1 by decide),
      Finset.mem_erase.mpr ⟨fun e => absurd (Proc.devRef_injective _ e) (show (cc14_scratch2 : Ref sig .scVector) ≠ cc14_scratch0 by decide),
      SparseCore.Cfg.mem_ownRefs_of_owner (p := pV L) (b := (pV L).devRef cc14_scratch2) rfl⟩⟩),
    SparseCore.bigSep_erase' (Finset.mem_erase.mpr ⟨fun e => absurd (Proc.devRef_injective _ e) (show (cc14_scratch3 : Ref sig .scVector) ≠ cc14_scratch2 by decide),
      Finset.mem_erase.mpr ⟨fun e => absurd (Proc.devRef_injective _ e) (show (cc14_scratch3 : Ref sig .scVector) ≠ cc14_scratch1 by decide),
      Finset.mem_erase.mpr ⟨fun e => absurd (Proc.devRef_injective _ e) (show (cc14_scratch3 : Ref sig .scVector) ≠ cc14_scratch0 by decide),
      SparseCore.Cfg.mem_ownRefs_of_owner (p := pV L) (b := (pV L).devRef cc14_scratch3) rfl⟩⟩⟩)]

/-- The rest of the subcore's scoped storage, which the task does not touch. -/
def restR : sProp 𝕄 :=
  iprop((bigSep (((((ownRefs (τ := τ) (pV L)).erase ((pV L).devRef cc14_scratch0)).erase ((pV L).devRef cc14_scratch1)).erase
              ((pV L).devRef cc14_scratch2)).erase ((pV L).devRef cc14_scratch3))
              fun b => iprop(∃ f, ((d, b) : Loc nD τ sig) ↦{fullShare} f))
      ∗ bigSep (((((ownCells (thr d L)).erase (c8 d L)).erase (c9 d L)).erase (c10 d L)).erase (c11 d L)) fun g => semVal g 0)

theorem body_pre (hO : ∀ g, O g none = 0) :
    iprop(levAts (K (F := F)).L (K (F := F)).lev ∗ emp ∗ goRes d L fx ∗ ownBufs (thr d L) ∗ ownSems0 (thr d L) ∗ owes (thr d L) O W)
      ⊢ runPre d L O W fx (restR (F := F) d L) := by
  rw [ownSems0_V, ownBufs_V]
  unfold goRes runPre restR
  iintro ⟨#Hlv, -, ⟨HX, HOut⟩, ⟨H4, H5, H6, H7, Hbufs⟩, ⟨Hs8, Hs9, Hs10, Hs11, Hsems⟩, HO⟩
  ihave Hmw := ((K (F := F)).mayWaits_none (thr := thr d L) hO) $$ Hlv
  isplitr; · iexact Hmw
  isplitl [HO]; · iexact HO
  isplitl [HX]; · iexact HX
  isplitl [HOut]; · iexact HOut
  isplitl [H4]; · iexact H4
  isplitl [H5]; · iexact H5
  isplitl [H6]; · iexact H6
  isplitl [H7]; · iexact H7
  isplitl [Hs8]; · iexact Hs8
  isplitl [Hs9]; · iexact Hs9
  isplitl [Hs10]; · iexact Hs10
  isplitl [Hs11]; · iexact Hs11
  isplitl [Hbufs]; · iexact Hbufs
  iexact Hsems

theorem body_post :
    runPost d L O W fx (restR (F := F) d L)
      ⊢ iprop(tdRes d L fx ∗ ownBufs (thr d L) ∗ ownSems0 (thr d L) ∗ ∃ W', ⌜∀ p ∈ W', p ∈ W ∨ p.2 = none⌝ ∗ owes (thr d L) O W') := by
  rw [ownSems0_V, ownBufs_V]
  unfold tdRes runPost restR
  iintro ⟨HX, HOut, H4, H5, H6, H7, Hs8, Hs9, Hs10, Hs11, HW, Hbufs, Hsems⟩
  isplitl [HX HOut]
  · isplitl [HX]; · iexact HX
    iexact HOut
  isplitl [H4 H5 H6 H7 Hbufs]
  · isplitl [H4]; · iexact H4
    isplitl [H5]; · iexact H5
    isplitl [H6]; · iexact H6
    isplitl [H7]; · iexact H7
    iexact Hbufs
  isplitl [Hs8 Hs9 Hs10 Hs11 Hsems]
  · isplitl [Hs8]; · iexact Hs8
    isplitl [Hs9]; · iexact Hs9
    isplitl [Hs10]; · iexact Hs10
    isplitl [Hs11]; · iexact Hs11
    iexact Hsems
  iexact HW

/-- The task in the launch theorem's shape: from what the call hands the tile and the subcore's scoped storage to
    what the tile hands back and the storage again. -/
theorem tile_body (hF : (K (F := F)).Facts) (hO : ∀ g, O g none = 0) :
    iprop(levAts (K (F := F)).L (K (F := F)).lev ∗ emp ∗ goRes d L fx ∗ scopedBufs (thr d L) ∗ scopedSems0 (thr d L) ∗ owes (thr d L) O W)
      ⊢ wp frame (wpE (defs₀ (F := F)) 𝒱₀ (thr d L) none) Set.univ
          (cc14_sc_group L xtW (Memref.isWhole_whole _) oW (Memref.isWhole_whole _) a4 (Memref.isWhole_whole _) a5 (Memref.isWhole_whole _)
            a6 (Memref.isWhole_whole _) a7 (Memref.isWhole_whole _) cc14_scratch4 cc14_scratch5 cc14_scratch6 cc14_scratch7)
          fun _ => iprop(tdRes d L fx ∗ scopedBufs (thr d L) ∗ scopedSems0 (thr d L)
            ∗ ∃ W', ⌜∀ p ∈ W', p ∈ W ∨ p.2 = none⌝ ∗ owes (thr d L) O W') := by
  rw [(K (F := F)).scopedBufs_V hF d (cV L) (jV L), SparseCore.Cfg.scopedSems0_V (Val := Elt F) d (cV L) (jV L)]
  exact (body_pre d L O W fx hO).trans ((tile_run d L O W fx (restR (F := F) d L)).trans (wp_mono frame _ _ fun _ => body_post d L O W fx))

end Tile

end Cert.Proof.TileB14

end
-- ==== Proof.TileVal15.lean ====
/-
  What the staging buffers of one vector subcore hold while it copies a piece of 3200 consecutive elements of row 15 of
  the transposed argument into the flat result, read index by index. No program and no ownership here: only the contents.

  A transfer lands the piece in row 0 of an 8 × 3200 staging array (`InRow`: position (0, t) of that row holds element
  (0, pos + t) of the transposed argument, `pos` the piece's first column). A loop of 200 trips copies that row, 16 lanes
  per trip, into the first 3200 elements of a flat staging array of 25600: trip `j` reads the 1 × 16 window at columns
  [16 j, 16 j + 16) of row 0 and writes it, flattened, at elements [16 j, 16 j + 16). After `j` trips the first 16 j
  elements of the flat array are the first 16 j elements of the row (`Lanes`); a trip extends the prefix by 16
  (`lanes_step`: an element below 16 j is outside the window written and keeps its value, an element of the window reads
  the lane written there, which is the row's element at the same column). A second transfer writes the first 3200
  elements of the flat array to the piece of the result at the same `pos`; so every element of that piece of the result
  holds the element of row 15 of the transposed argument at its own position (`out_written`): the composite of the three
  index maps t ↦ (0, pos + t) ↦ (0, t) ↦ t ↦ pos + t is the identity on positions of the row.
-/
import proofs.«206869_g37898791420194_cont_8to1_b_558_20_alg».proof.Proof.TileK15Defs
import proofs.«206869_g37898791420194_cont_8to1_b_558_20_alg».proof.Proof.Spec
import Idealize.ShloMosaic.Lib.WritesUnit
import Idealize.ShloMosaic.Lib.ValueLayout

noncomputable section

namespace Cert.Proof.TileVal15

open Cert.Proof.TileK15 Cert.KernelIdeal Cert.KernelIdeal.Gen
open Idealize.ShloMosaic Idealize.ShloMosaic.ValueIdx

variable {F : FTy → Type} [FloatOps F]
variable (d : Dev nD) (L : grid15.Coords)
variable (fx : Buf (Elt F) ((Memref.whole main_v0_scv : Memref sig .scVector .hbm S22x1600000 .f32).view.loc (thr d L)))

abbrev rowRect : Rect S8x3200 := Rect.unit (s := S8x3200) ![0, 0] S1x3200.size inb_S8x3200_S1x3200_0_0

/-- row 0 of the staging array is piece n of the argument row -/
def InRow (a : Memref sig .scVector .vmem S8x3200 .f32) (ga : Buf (Elt F) (a.view.loc (thr d L))) (n : ℕ) : Prop :=
  ∀ y : S1x3200.Idx, a.view.read (Elt F) ga (rowRect.emb y) = (inM L n).view.read (Elt F) fx y

theorem inRow_fetch (a : Memref sig .scVector .vmem S8x3200 .f32) (gold : Buf (Elt F) (a.view.loc (thr d L)))
    (w : S1x3200.Idx → Elt F .f32) (n : ℕ) (hw : ∀ y, w y = (inM L n).view.read (Elt F) fx y) :
    InRow d L fx a (a.view.writes (Elt F) gold [⟨rowRect, w⟩]) n :=
  fun y => (View.read_writes_cons_emb a.view gold rowRect w [] y).trans (hw y)

def Lanes (a : Memref sig .scVector .vmem S8x3200 .f32) (b : Memref sig .scVector .vmem S25600 .f32)
    (ga : Buf (Elt F) (a.view.loc (thr d L))) (gb : Buf (Elt F) (b.view.loc (thr d L))) (j : ℕ) : Prop :=
  ∀ (r : ℕ) (hr : r < 3200), r < 16 * j →
    b.view.read (Elt F) gb (ix1 (⟨r, by omega⟩ : Fin 25600)) = a.view.read (Elt F) ga (ix2 (0 : Fin 8) (⟨r, hr⟩ : Fin 3200))

theorem lanes_zero (a : Memref sig .scVector .vmem S8x3200 .f32) (b : Memref sig .scVector .vmem S25600 .f32)
    (ga : Buf (Elt F) (a.view.loc (thr d L))) (gb : Buf (Elt F) (b.view.loc (thr d L))) : Lanes d L a b ga gb 0 := by
  intro r hr h; omega

/-- The 1 × 16 window at column `c` of the staging array, read at lane `t`, is element `(0, c + t)`. -/
theorem idx_window {off : Fin 2 → ℕ} {c : ℕ} (h : off = ![0, c]) (p : ∀ a', off a' + S1x16.size a' ≤ S8x3200.size a')
    (t : Fin 16) (hr : c + t.val < 3200) :
    (Rect.unit (s := S8x3200) off S1x16.size p).toLoadRect.idx (ix2 (0 : Fin 1) t) = ix2 (0 : Fin 8) (⟨c + t.val, hr⟩ : Fin 3200) := by
  subst h
  funext a'; apply Fin.ext
  rw [LoadRect.idx_apply]
  match a' with
  | ⟨0, _⟩ => show 0 + 1 * 0 = 0; omega
  | ⟨1, _⟩ => show c + 1 * t.val = c + t.val; omega

/-- One trip of a lane-copy loop, the offsets given by their closed forms. -/
theorem lanes_step_core (a : Memref sig .scVector .vmem S8x3200 .f32) (b : Memref sig .scVector .vmem S25600 .f32)
    (ga : Buf (Elt F) (a.view.loc (thr d L))) (gb : Buf (Elt F) (b.view.loc (thr d L)))
    (t : ℕ) {off3 : Fin 2 → ℕ} {off4 : Fin 1 → ℕ} (h3 : off3 = ![0, 16 * t]) (h4 : off4 = ![16 * t])
    (p3 : ∀ a', off3 a' + S1x16.size a' ≤ S8x3200.size a') (p4 : ∀ a', off4 a' + S16.size a' ≤ S25600.size a')
    (h : Lanes d L a b ga gb t) :
    Lanes d L a b ga (b.view.writes (Elt F) gb [⟨Rect.unit (s := S25600) off4 S16.size p4,
      shapeCast S16 (a.view.readAt (Elt F) (Rect.unit (s := S8x3200) off3 S1x16.size p3).toLoadRect ga) shapeCasts_S1x16_S16⟩]) (t + 1) := by
  intro r hr hlt
  by_cases hlo : r < 16 * t
  · refine (View.read_writes_cons_unit_of_not_mem b.view gb p4 _ [] _ h4 (0 : Fin 1) (Or.inl ?_)).trans (h r hr hlo)
    show r < 16 * t
    exact hlo
  · have hx : r - 16 * t < 16 := by omega
    refine (View.read_writes_cons_unit_of_mem b.view gb p4 _ [] _ (ix1 (⟨r - 16 * t, hx⟩ : Fin 16)) h4 ?_).trans ?_
    · intro a'
      match a' with
      | ⟨0, _⟩ => show r = 16 * t + (r - 16 * t); omega
    · rw [shapeCast_1a_a_apply, View.readAt_apply, idx_window h3 p3 ⟨r - 16 * t, hx⟩ (by show 16 * t + (r - 16 * t) < 3200; omega)]
      congr 2
      apply Fin.ext
      show 16 * t + (r - 16 * t) = r
      omega

theorem lanes_step (a : Memref sig .scVector .vmem S8x3200 .f32) (b : Memref sig .scVector .vmem S25600 .f32)
    (ga : Buf (Elt F) (a.view.loc (thr d L))) (gb : Buf (Elt F) (b.view.loc (thr d L)))
    (j : Fin k15_t2_loop.trips) (p3 : ∀ a', (k15_off3 j) a' + S1x16.size a' ≤ S8x3200.size a')
    (p4 : ∀ a', (k15_off4 j) a' + S16.size a' ≤ S25600.size a') (h : Lanes d L a b ga gb j.val) :
    Lanes d L a b ga (b.view.writes (Elt F) gb [⟨Rect.unit (s := S25600) (k15_off4 j) S16.size p4,
      k15_pay1 (a.view.readAt (Elt F) (Rect.unit (s := S8x3200) (k15_off3 j) S1x16.size p3).toLoadRect ga)⟩]) (j.val + 1) :=
  lanes_step_core d L a b ga gb j.val (k15_off3_eq j) (k15_off4_eq j) p3 p4 h

theorem lanes_step' (a : Memref sig .scVector .vmem S8x3200 .f32) (b : Memref sig .scVector .vmem S25600 .f32)
    (ga : Buf (Elt F) (a.view.loc (thr d L))) (gb : Buf (Elt F) (b.view.loc (thr d L)))
    (j : Fin k15_t3_loop.trips) (p3 : ∀ a', (k15_off8 j) a' + S1x16.size a' ≤ S8x3200.size a')
    (p4 : ∀ a', (k15_off9 j) a' + S16.size a' ≤ S25600.size a') (h : Lanes d L a b ga gb j.val) :
    Lanes d L a b ga (b.view.writes (Elt F) gb [⟨Rect.unit (s := S25600) (k15_off9 j) S16.size p4,
      k15_pay2 (a.view.readAt (Elt F) (Rect.unit (s := S8x3200) (k15_off8 j) S1x16.size p3).toLoadRect ga)⟩]) (j.val + 1) :=
  lanes_step_core d L a b ga gb j.val (k15_off8_eq j) (k15_off9_eq j) p3 p4 h

/-- Position `y` of the write-out window of the flat staging array is its element `y 0`. -/
theorem stg_emb (y : S3200.Idx) (hy : (y 0).val < 25600) :
    (Rect.unit (s := S25600) ![0] S3200.size inb_S25600_S3200_0).emb y = ix1 (⟨(y 0).val, hy⟩ : Fin 25600) := by
  funext a'; apply Fin.ext
  match a' with
  | ⟨0, _⟩ => show 0 + 1 * (y 0).val = (y 0).val; omega

/-- Position `(0, t)` of row 0 of the staging array is its element `(0, t)`. -/
theorem row_emb (t : Fin 3200) : rowRect.emb (ix2 (0 : Fin 1) t) = ix2 (0 : Fin 8) t := by
  funext a'; apply Fin.ext
  match a' with
  | ⟨0, _⟩ => show 0 + 1 * 0 = 0; omega
  | ⟨1, _⟩ => show 0 + 1 * t.val = t.val; omega

/-- Position `(0, t)` of piece `n` of the argument row is element `(0, pos + t)` of the transposed argument;
    position `y` of piece `n` of the result is element `pos + y 0` of the result. -/
theorem in_emb (n : ℕ) (t : Fin 3200) (h : pos L n + t.val < 1600000) :
    (inM L n).view.emb (ix2 (0 : Fin 1) t) = ix2 (15 : Fin 22) (⟨pos L n + t.val, h⟩ : Fin 1600000) := by
  funext a'; apply Fin.ext
  match a' with
  | ⟨0, _⟩ => show 15 + 1 * 0 = 15; omega
  | ⟨1, _⟩ => show pos L n + 1 * t.val = pos L n + t.val; omega

theorem out_emb (n : ℕ) (y : S3200.Idx) (h : pos L n + (y 0).val < 1600000) :
    (outM L n).view.emb y = ix1 (⟨pos L n + (y 0).val, h⟩ : Fin 1600000) := by
  funext a'; apply Fin.ext
  match a' with
  | ⟨0, _⟩ => show pos L n + 1 * (y 0).val = pos L n + (y 0).val; omega

/-- Both lane-copy loops run 200 trips: 200 · 16 = 3200, the whole row. -/
theorem trips2 : k15_t2_loop.trips = 200 := by decide
theorem trips3 : k15_t3_loop.trips = 200 := by decide

/-- After all its trips a lane-copy loop has copied the whole row. -/
theorem lanes_all (a : Memref sig .scVector .vmem S8x3200 .f32) (b : Memref sig .scVector .vmem S25600 .f32)
    (ga : Buf (Elt F) (a.view.loc (thr d L))) (gb : Buf (Elt F) (b.view.loc (thr d L)))
    (h : Lanes d L a b ga gb k15_t2_loop.trips) : Lanes d L a b ga gb 200 := trips2 ▸ h
theorem lanes_all' (a : Memref sig .scVector .vmem S8x3200 .f32) (b : Memref sig .scVector .vmem S25600 .f32)
    (ga : Buf (Elt F) (a.view.loc (thr d L))) (gb : Buf (Elt F) (b.view.loc (thr d L)))
    (h : Lanes d L a b ga gb k15_t3_loop.trips) : Lanes d L a b ga gb 200 := trips3 ▸ h

/-- The write-out of a piece: the first 3200 elements of the flat staging array, which the 200 lane copies filled from
    row 0 of the staging array, which the fetch filled from piece `n` of row 15 of the transposed argument, land at
    piece `n` of the result, at the same positions of the row. -/
theorem out_written (a : Memref sig .scVector .vmem S8x3200 .f32) (b : Memref sig .scVector .vmem S25600 .f32) (n : ℕ)
    (ga : Buf (Elt F) (a.view.loc (thr d L))) (gb : Buf (Elt F) (b.view.loc (thr d L)))
    (f0 : Buf (Elt F) ((outM L n).view.loc (thr d L))) (w : S3200.Idx → Elt F .f32)
    (hw : ∀ y, w y = (stg b).view.read (Elt F) gb y) (hl : Lanes d L a b ga gb 200) (hr : InRow d L fx a ga n) (hv : valid L n) :
    ∀ i ∈ (outM L n).view.set, ((outM L n).view.writes (Elt F) f0 [⟨Rect.whole _, w⟩]) i = Cert.Spec.row 15 fx i := by
  intro i hi
  obtain ⟨y, -, rfl⟩ := Finset.mem_map.mp hi
  have hy : (y 0).val < 3200 := (y 0).isLt
  have hp : pos L n + (y 0).val < 1600000 := by unfold pos; omega
  have e1 : (outM L n).view.writes (Elt F) f0 [⟨Rect.whole _, w⟩] ((outM L n).view.emb y) = w y := by
    have h := View.read_writes_cons_emb (outM L n).view f0 (Rect.whole _) w [] y
    rw [Rect.emb_whole_apply] at h
    exact (cast_eq _ _).symm.trans ((View.read_apply _ _).symm.trans h)
  have e2 : (stg b).view.read (Elt F) gb y = b.view.read (Elt F) gb (ix1 (⟨(y 0).val, by omega⟩ : Fin 25600)) :=
    congrArg (b.view.read (Elt F) gb) (stg_emb y (by omega))
  have e3 : a.view.read (Elt F) ga (ix2 (0 : Fin 8) (⟨(y 0).val, hy⟩ : Fin 3200))
      = (inM L n).view.read (Elt F) fx (ix2 (0 : Fin 1) (⟨(y 0).val, hy⟩ : Fin 3200)) :=
    (congrArg (a.view.read (Elt F) ga) (row_emb ⟨(y 0).val, hy⟩).symm).trans (hr _)
  have e4 : (inM L n).view.read (Elt F) fx (ix2 (0 : Fin 1) (⟨(y 0).val, hy⟩ : Fin 3200))
      = fx (ix2 (15 : Fin 22) (⟨pos L n + (y 0).val, hp⟩ : Fin 1600000)) :=
    ((View.read_apply _ _).trans (cast_eq _ _)).trans (congrArg fx (in_emb L n ⟨(y 0).val, hy⟩ hp))
  have e5 : Cert.Spec.row 15 fx ((outM L n).view.emb y) = fx (ix2 (15 : Fin 22) (⟨pos L n + (y 0).val, hp⟩ : Fin 1600000)) :=
    (congrArg (Cert.Spec.row 15 fx) (out_emb L n y hp)).trans (Cert.Spec.row_apply 15 fx _)
  exact e1.trans ((hw y).trans (e2.trans ((hl _ hy (by omega)).trans (e3.trans (e4.trans e5.symm)))))

end Cert.Proof.TileVal15

end
-- ==== Proof.TileK15.lean ====
/-
  One vector subcore's task of copy kernel 15 (counting from 0), run symbolically: the two fetch slots and two write-out slots
  between trips of the main loop (what each transfer in flight will hand back, and what the staging buffers hold), the
  invariant of the main loop and of the two lane-copy loops, and the task's run — from the tile's pieces of row 15 of
  the transposed argument and of the result to the same pieces with the result holding the row's elements.
-/
import proofs.«206869_g37898791420194_cont_8to1_b_558_20_alg».proof.Proof.TileK15Defs
import proofs.«206869_g37898791420194_cont_8to1_b_558_20_alg».proof.Proof.TileVal15
noncomputable section

namespace Cert.Proof.TileK15

open Cert.KernelIdeal Cert.KernelIdeal.Gen Cert.Proof.TileVal15
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 22) (Elt F) ℕ UU ℕ
local notation "xtW" => (Memref.whole Cert.KernelIdeal.main_v0_scv : Memref Cert.KernelIdeal.sig Kind.scVector Space.hbm Cert.KernelIdeal.S22x1600000 EltTy.f32)
local notation "oW" => (Memref.whole Cert.KernelIdeal.main_v16_scv : Memref Cert.KernelIdeal.sig Kind.scVector Space.hbm Cert.KernelIdeal.S1600000 EltTy.f32)
local notation "a4" => (Memref.whole Cert.KernelIdeal.cc15_scratch0 : Memref Cert.KernelIdeal.sig Kind.scVector Space.vmem Cert.KernelIdeal.S8x3200 EltTy.f32)
local notation "a5" => (Memref.whole Cert.KernelIdeal.cc15_scratch1 : Memref Cert.KernelIdeal.sig Kind.scVector Space.vmem Cert.KernelIdeal.S8x3200 EltTy.f32)
local notation "a6" => (Memref.whole Cert.KernelIdeal.cc15_scratch2 : Memref Cert.KernelIdeal.sig Kind.scVector Space.vmem Cert.KernelIdeal.S25600 EltTy.f32)
local notation "a7" => (Memref.whole Cert.KernelIdeal.cc15_scratch3 : Memref Cert.KernelIdeal.sig Kind.scVector Space.vmem Cert.KernelIdeal.S25600 EltTy.f32)

variable [FloatOps F]

section Tile

variable (d : Dev nD) (L : grid15.Coords)
variable (O : CellTallies nD τ sig (HIx 22)) (W : Waits sig (HIx 22))
variable (fx : Buf (Elt F) ((xtW).view.loc (thr d L)))

/-- Piece `n` of the result at its final contents. -/
abbrev oqPiece (n : ℕ) : sProp 𝕄 := (outM L n).view.loc (thr d L) ↦[(outM L n).view.set]{fullShare} (Cert.Spec.row 15 fx)
theorem oQ_pos {n : ℕ} (v : valid L n) : oQ d L fx n = oqPiece d L fx n := if_pos v
theorem oQ_neg {n : ℕ} (v : ¬ valid L n) : oQ d L fx n = iprop(emp) := if_neg v

/-- A fetch slot, remembering that the staging row it will hand back holds the piece. -/
def inSlotV (a : Memref sig .scVector .vmem S8x3200 .f32) (sm : DmaSem sig) (n : ℕ) : sProp 𝕄 :=
  if valid L n then
    iprop(∃ g, ⌜InRow d L fx a g n⌝ ∗ Transfers.Flight countersEmb (thr d L) (SemLoc.dma sm) (default : HIx 22) NN
      iprop((a.view.loc (thr d L) ↦{fullShare} g) ∗ xtPiece d L fx n))
  else iprop((∃ g, a.view.loc (thr d L) ↦{fullShare} g) ∗ semVal (thr d L, SemLoc.dma sm) 0)

/-- A write-out slot: the piece in flight will come back holding the row's elements. -/
def outSlotV (a : Memref sig .scVector .vmem S25600 .f32) (sm : DmaSem sig) (m : ℕ) : sProp 𝕄 :=
  if 2 ≤ m ∧ valid L (m - 2) then
    iprop(∃ g, Transfers.Flight countersEmb (thr d L) (SemLoc.dma sm) (default : HIx 22) NN
        iprop(oqPiece d L fx (m - 2) ∗ ((stg a).view.loc (thr d L) ↦[(stg a).view.set]{fullShare} g))
      ∗ (a.view.loc (thr d L) ↦[Finset.univ \ (stg a).view.set]{fullShare} g))
  else iprop((∃ g, a.view.loc (thr d L) ↦{fullShare} g) ∗ semVal (thr d L, SemLoc.dma sm) 0)

theorem inSlotV_pos {a : Memref sig .scVector .vmem S8x3200 .f32} {sm : DmaSem sig} {n : ℕ} (v : valid L n) :
    inSlotV d L fx a sm n = iprop(∃ g, ⌜InRow d L fx a g n⌝ ∗ Transfers.Flight countersEmb (thr d L) (SemLoc.dma sm) (default : HIx 22) NN
      iprop((a.view.loc (thr d L) ↦{fullShare} g) ∗ xtPiece d L fx n)) := by unfold inSlotV; rw [if_pos v]
theorem inSlotV_neg {a : Memref sig .scVector .vmem S8x3200 .f32} {sm : DmaSem sig} {n : ℕ} (v : ¬ valid L n) :
    inSlotV d L fx a sm n = iprop((∃ g, a.view.loc (thr d L) ↦{fullShare} g) ∗ semVal (thr d L, SemLoc.dma sm) 0) := by
  unfold inSlotV; rw [if_neg v]
theorem outSlotV_pos {a : Memref sig .scVector .vmem S25600 .f32} {sm : DmaSem sig} {m : ℕ} (h : 2 ≤ m ∧ valid L (m - 2)) :
    outSlotV d L fx a sm m = iprop(∃ g, Transfers.Flight countersEmb (thr d L) (SemLoc.dma sm) (default : HIx 22) NN
        iprop(oqPiece d L fx (m - 2) ∗ ((stg a).view.loc (thr d L) ↦[(stg a).view.set]{fullShare} g))
      ∗ (a.view.loc (thr d L) ↦[Finset.univ \ (stg a).view.set]{fullShare} g)) := by unfold outSlotV; rw [if_pos h]
theorem outSlotV_neg {a : Memref sig .scVector .vmem S25600 .f32} {sm : DmaSem sig} {m : ℕ} (h : ¬ (2 ≤ m ∧ valid L (m - 2))) :
    outSlotV d L fx a sm m = iprop((∃ g, a.view.loc (thr d L) ↦{fullShare} g) ∗ semVal (thr d L, SemLoc.dma sm) 0) := by
  unfold outSlotV; rw [if_neg h]

/-- A fetch just issued: the staging row will hold what the transfer reads, which is the piece. -/
theorem fl_inV {off : Fin 2 → ℕ} {n : ℕ} (h : off = ![15, pos L n]) (p : ∀ a, off a + S1x3200.size a ≤ S22x1600000.size a) (v : valid L n)
    (a : Memref sig .scVector .vmem S8x3200 .f32) (sm : DmaSem sig) :
    (iprop(∃ (gold : Buf (Elt F) (a.view.loc (thr d L))) (w : S1x3200.Idx → Elt F .f32),
        ⌜∀ y, w y = ((xtW).slice (Rect.unit (s := S22x1600000) off S1x3200.size p) (fun _ => rfl)).view.read (Elt F) fx y⌝
        ∗ Transfers.Flight countersEmb (thr d L) (SemLoc.dma sm) (default : HIx 22) NN
          iprop((a.view.loc (thr d L) ↦{fullShare} a.view.writes (Elt F) gold [⟨rowRect, w⟩])
            ∗ (((xtW).slice (Rect.unit (s := S22x1600000) off S1x3200.size p) (fun _ => rfl)).view.loc (thr d L)
                ↦[((xtW).slice (Rect.unit (s := S22x1600000) off S1x3200.size p) (fun _ => rfl)).view.set]{fullShare} fx))) : sProp 𝕄)
      ⊢ inSlotV d L fx a sm n := by
  subst h
  rw [inSlotV_pos d L fx v]
  iintro ⟨%gold, %w, %hw, H⟩
  iexists _
  isplitr
  · ipureintro; exact inRow_fetch d L fx a gold w n hw
  · iexact H

set_option maxHeartbeats 4000000 in
/-- A write-out just issued from a flat staging buffer whose first 3200 elements are the staging row, itself piece
    `n` of the argument row: the piece of the result will hold the row's elements. -/
theorem fl_outV {off : Fin 1 → ℕ} {n : ℕ} (h : off = ![pos L n]) (p : ∀ a, off a + S3200.size a ≤ S1600000.size a) (v : valid L n)
    (ar : Memref sig .scVector .vmem S8x3200 .f32) (a : Memref sig .scVector .vmem S25600 .f32) (sm : DmaSem sig)
    (f0 : Buf (Elt F) ((oW).view.loc (thr d L))) (ga : Buf (Elt F) (ar.view.loc (thr d L))) (gb : Buf (Elt F) (a.view.loc (thr d L)))
    (hl : Lanes d L ar a ga gb 200) (hr : InRow d L fx ar ga n) :
    (iprop(∃ (w : S3200.Idx → Elt F .f32),
        ⌜∀ y, w y = (stg a).view.read (Elt F) gb y⌝
        ∗ Transfers.Flight countersEmb (thr d L) (SemLoc.dma sm) (default : HIx 22) NN
          iprop((((oW).slice (Rect.unit (s := S1600000) off S3200.size p) (fun _ => rfl)).view.loc (thr d L)
                ↦[((oW).slice (Rect.unit (s := S1600000) off S3200.size p) (fun _ => rfl)).view.set]{fullShare}
                  (((oW).slice (Rect.unit (s := S1600000) off S3200.size p) (fun _ => rfl)).view.writes (Elt F) f0 [⟨Rect.whole _, w⟩]))
            ∗ ((stg a).view.loc (thr d L) ↦[(stg a).view.set]{fullShare} gb))
        ∗ (a.view.loc (thr d L) ↦[Finset.univ \ (stg a).view.set]{fullShare} gb)) : sProp 𝕄)
      ⊢ outSlotV d L fx a sm (n + 2) := by
  subst h
  rw [outSlotV_pos d L fx (m := n + 2) ⟨by omega, by simpa using v⟩]
  iintro ⟨%w, %hw, H, R⟩
  have hD : (iprop(((outM L n).view.loc (thr d L) ↦[(outM L n).view.set]{fullShare} ((outM L n).view.writes (Elt F) f0 [⟨Rect.whole _, w⟩]))
          ∗ ((stg a).view.loc (thr d L) ↦[(stg a).view.set]{fullShare} gb)) : sProp 𝕄)
      ⊢ iprop(oqPiece d L fx (n + 2 - 2) ∗ ((stg a).view.loc (thr d L) ↦[(stg a).view.set]{fullShare} gb)) := by
    rw [Nat.add_sub_cancel]
    have e : (((outM L n).view.loc (thr d L) ↦[(outM L n).view.set]{fullShare} ((outM L n).view.writes (Elt F) f0 [⟨Rect.whole _, w⟩])) : sProp 𝕄)
        = oqPiece d L fx n := pointsTo_congr (out_written d L fx ar a n ga gb f0 w hw hl hr v)
    iintro ⟨H1, H2⟩
    isplitl [H1]
    · iapply (Entails.of_eq e); iexact H1
    · iexact H2
  iexists gb
  isplitl [H]
  · iapply (Transfers.Flight_mono countersEmb (thr d L) hD); iexact H
  · iexact R

/-- The result pieces outside the slots before trip `t`: those already written hold the row, the others some contents. -/
def oMix (t n : ℕ) : sProp 𝕄 := if n + 2 < 2 * t then oQ d L fx n else oP (F := F) d L n
theorem oMix_lt {t n : ℕ} (h : n + 2 < 2 * t) : oMix d L fx t n = oQ d L fx n := if_pos h
theorem oMix_ge {t n : ℕ} (h : ¬ n + 2 < 2 * t) : oMix d L fx t n = oP (F := F) d L n := if_neg h
theorem oMix_core (k : ℕ) : bigSep (oCore k) (oMix d L fx k) = bigSep (oCore k) (oMix d L fx (k + 1)) :=
  bigSep_congr fun n hn => by
    have hn' : n + 2 ≠ 2 * k ∧ n + 2 ≠ 2 * k + 1 ∧ n ≠ 2 * k ∧ n ≠ 2 * k + 1 := by
      simp only [oCore, Finset.mem_filter, Finset.mem_range] at hn; exact hn.2
    by_cases h : n + 2 < 2 * k
    · rw [oMix_lt d L fx h, oMix_lt d L fx (by omega)]
    · rw [oMix_ge d L fx h, oMix_ge d L fx (by omega)]
theorem oMix_zero : bigSep (oSet 0) (oMix d L fx 0) = bigSep (Finset.range 18) (oP (F := F) d L) := by
  rw [oSet_zero]; exact bigSep_congr fun n _ => oMix_ge d L fx (by omega)
theorem oMix_end : bigSep (oSet 8) (oMix d L fx 8) = bigSep (oSet 8) (oQ d L fx) :=
  bigSep_congr fun n hn => by
    have hn' : n < 18 ∧ n + 2 ≠ 16 ∧ n + 2 ≠ 17 := by simpa only [oSet, Finset.mem_filter, Finset.mem_range] using hn
    by_cases h : n + 2 < 2 * 8
    · exact oMix_lt d L fx h
    · rw [oMix_ge d L fx h, oP_neg (F := F) d L (by unfold valid; omega), oQ_neg d L fx (by unfold valid; omega)]

/-- The lane-copy loops: before trip `j` the first 16·j elements of the flat staging buffer are the staging row's. -/
def laneV0 (g4 : Buf (Elt F) ((a4).view.loc (thr d L))) (j : ℕ) (_ : PUnit) : sProp 𝕄 :=
  iprop(((a4).view.loc (thr d L) ↦{fullShare} g4) ∗ (∃ g, ((a6).view.loc (thr d L) ↦{fullShare} g) ∗ ⌜Lanes d L a4 a6 g4 g j⌝))
def laneV1 (g5 : Buf (Elt F) ((a5).view.loc (thr d L))) (j : ℕ) (_ : PUnit) : sProp 𝕄 :=
  iprop(((a5).view.loc (thr d L) ↦{fullShare} g5) ∗ (∃ g, ((a7).view.loc (thr d L) ↦{fullShare} g) ∗ ⌜Lanes d L a5 a7 g5 g j⌝))

def invV (t : ℕ) (_ : PUnit) : sProp 𝕄 :=
  iprop(Transfers.MayWaits (thr d L) (none : HIx 22) O
    ∗ (∃ W', ⌜∀ p ∈ W', p ∈ W ∨ p.2 = none⌝ ∗ owes (thr d L) O W')
    ∗ bigSep (xSet t) (xP d L fx) ∗ bigSep (oSet t) (oMix d L fx t)
    ∗ inSlotV d L fx a4 cc15_scratch4.sem (2 * t) ∗ outSlotV d L fx a6 cc15_scratch6.sem (2 * t)
    ∗ inSlotV d L fx a5 cc15_scratch5.sem (2 * t + 1) ∗ outSlotV d L fx a7 cc15_scratch7.sem (2 * t + 1))

/-- After the last trip nothing of the argument row is in a slot: the tile holds all its pieces. -/
theorem xRange_end : bigSep (xSet 8) (xP d L fx) ⊢ bigSep (Finset.range 18) (xP d L fx) := by
  rw [two_out (s := Finset.range 18) (a := 16) (b := 17) (by decide) (by decide) (by decide),
    show ((Finset.range 18).erase 16).erase 17 = xSet 8 by decide]
  iintro H
  isplitr; · iapply (Entails.of_eq (xP_neg d L fx (n := 16) (by unfold valid; omega)).symm); iempintro
  isplitr; · iapply (Entails.of_eq (xP_neg d L fx (n := 17) (by unfold valid; omega)).symm); iempintro
  iexact H
omit [FloatOps F] in
theorem oRange_end (Φ : ℕ → sProp 𝕄) : bigSep (Finset.range 18) Φ = iprop(Φ 14 ∗ Φ 15 ∗ bigSep (oSet 8) Φ) := by
  rw [two_out (s := Finset.range 18) (a := 14) (b := 15) (by decide) (by decide) (by decide),
    show ((Finset.range 18).erase 14).erase 15 = oSet 8 by decide]

/-- What the run starts from and ends with, beside an untouched rest `R`. -/
def runPre (R : sProp 𝕄) : sProp 𝕄 :=
    iprop(Transfers.MayWaits (thr d L) (none : HIx 22) O ∗ owes (thr d L) O W
        ∗ bigSep (Finset.range 18) (xP d L fx) ∗ bigSep (Finset.range 18) (oP (F := F) d L)
        ∗ (∃ g, (a4).view.loc (thr d L) ↦{fullShare} g) ∗ (∃ g, (a5).view.loc (thr d L) ↦{fullShare} g)
        ∗ (∃ g, (a6).view.loc (thr d L) ↦{fullShare} g) ∗ (∃ g, (a7).view.loc (thr d L) ↦{fullShare} g)
        ∗ semVal (thr d L, SemLoc.dma cc15_scratch4.sem) 0 ∗ semVal (thr d L, SemLoc.dma cc15_scratch5.sem) 0
        ∗ semVal (thr d L, SemLoc.dma cc15_scratch6.sem) 0 ∗ semVal (thr d L, SemLoc.dma cc15_scratch7.sem) 0 ∗ R)
def runPost (R : sProp 𝕄) : sProp 𝕄 :=
    iprop(bigSep (Finset.range 18) (xP d L fx) ∗ bigSep (Finset.range 18) (oQ d L fx)
            ∗ (∃ g, (a4).view.loc (thr d L) ↦{fullShare} g) ∗ (∃ g, (a5).view.loc (thr d L) ↦{fullShare} g)
            ∗ (∃ g, (a6).view.loc (thr d L) ↦{fullShare} g) ∗ (∃ g, (a7).view.loc (thr d L) ↦{fullShare} g)
            ∗ semVal (thr d L, SemLoc.dma cc15_scratch4.sem) 0 ∗ semVal (thr d L, SemLoc.dma cc15_scratch5.sem) 0
            ∗ semVal (thr d L, SemLoc.dma cc15_scratch6.sem) 0 ∗ semVal (thr d L, SemLoc.dma cc15_scratch7.sem) 0
            ∗ (∃ W', ⌜∀ p ∈ W', p ∈ W ∨ p.2 = none⌝ ∗ owes (thr d L) O W') ∗ R)

set_option maxHeartbeats 16000000 in
/-- The task's run: from its pieces of the argument row and of the result, the four staging buffers and the four
    semaphores at zero, to the same with every piece of the result holding the row's elements. -/
theorem tile_run (R : sProp 𝕄) :
    runPre d L O W fx R
      ⊢ wp frame (wpE (defs₀ (F := F)) 𝒱₀ (thr d L) none) Set.univ
          (cc15_sc_group L xtW (Memref.isWhole_whole _) oW (Memref.isWhole_whole _) a4 (Memref.isWhole_whole _) a5 (Memref.isWhole_whole _)
            a6 (Memref.isWhole_whole _) a7 (Memref.isWhole_whole _) cc15_scratch4 cc15_scratch5 cc15_scratch6 cc15_scratch7)
          fun _ => runPost d L O W fx R := by
  unfold runPre runPost
  have v0 : valid L 0 := Or.inl (by omega)
  have v1 : valid L 1 := Or.inl (by omega)
  have k15_h7 : k15_cond7 L = 1#1 := cond7_iff L
  iintro ⟨#Hmw, HO, HX, HOut, ⟨%g4, H4⟩, ⟨%g5, H5⟩, ⟨%g6, H6⟩, ⟨%g7, H7⟩, Hs8, Hs9, Hs10, Hs11, HR⟩
  ihave HX := (Entails.of_eq (xRange_split d L fx v0 v1)) $$ HX
  icases HX with ⟨X0, X1, HX⟩
  ihave X0 := (Entails.of_eq (in_congr d L (off_in0 L v0).symm (in_inb L _) (k15_off1_inb L 0) fx)) $$ X0
  ihave X1 := (Entails.of_eq (in_congr d L (off_in1 L v1).symm (in_inb L _) (k15_off1_inb L 1) fx)) $$ X1
  sl_unfold [cc15_sc_group]
  sl_exec
  ihave S8 := (fl_inV d L fx (off_in0 L v0) (k15_off1_inb L 0) v0 a4 cc15_scratch4.sem) $$ [Hs8]
  · iexists _, _
    isplitr
    rotate_left
    · iexact Hs8
    ipureintro; intro y; rfl
  ihave S9 := (fl_inV d L fx (off_in1 L v1) (k15_off1_inb L 1) v1 a5 cc15_scratch5.sem) $$ [Hs9]
  · iexists _, _
    isplitr
    rotate_left
    · iexact Hs9
    ipureintro; intro y; rfl
  sl_for (invV d L O W fx) $$ [HO HX HOut S8 S9 H6 H7 Hs10 Hs11]
  case region =>
    intro (k : Fin k15_t1_loop.trips) acc
    have hk : k.val < 8 := Nat.lt_of_lt_of_eq k.isLt trips1
    unfold invV
    iintro ⟨#Hmw, ⟨%W', %hW', HO⟩, HX, HOut, S8, S10, S9, S11⟩
    by_cases hk1 : 1 ≤ k.val
    · by_cases v3 : valid L (2 * k.val + 3)
      · -- the generic trip: both drains, both pieces worked, both next fetches issued
        have hk6 : k.val ≤ 6 := by unfold valid at v3; omega
        have k15_h1 : k15_cond1 k = 1#1 := (cond1_iff k).mpr (by omega)
        have k15_h2 : k15_cond2 L k = 1#1 := cond2_iff L k
        have k15_h3 : k15_cond3 L k = 1#1 := (cond3_iff L k).mpr (by omega)
        have k15_h4 : k15_cond4 k = 1#1 := (cond4_iff k).mpr (by omega)
        have k15_h5 : k15_cond5 L k = 1#1 := (cond5_iff L k).mpr (by first | (unfold valid big at *; omega) | (unfold big at *; omega) | omega)
        have k15_h6 : k15_cond6 L k = 1#1 := (cond6_iff L k).mpr (by first | (unfold valid big at *; omega) | (unfold big at *; omega) | omega)
        have v0 : valid L (2 * k.val) := by unfold valid big at *; omega
        have v1 : valid L (2 * k.val + 1) := by unfold valid big at *; omega
        have v2 : valid L (2 * k.val + 2) := by unfold valid big at *; omega
        have v3' : valid L (2 * k.val + 3) := by unfold valid big at *; omega
        have hm0 : 2 ≤ 2 * k.val ∧ valid L (2 * k.val - 2) := ⟨by omega, by unfold valid big at *; omega⟩
        have hm1 : 2 ≤ 2 * k.val + 1 ∧ valid L (2 * k.val + 1 - 2) := ⟨by omega, by unfold valid big at *; omega⟩
        ihave S8 := (Entails.of_eq (inSlotV_pos d L fx v0)) $$ S8
        icases S8 with ⟨%g4, %hin4, F8⟩
        ihave S9 := (Entails.of_eq (inSlotV_pos d L fx v1)) $$ S9
        icases S9 with ⟨%g5, %hin5, F9⟩
        ihave S10 := (Entails.of_eq (outSlotV_pos d L fx hm0)) $$ S10
        icases S10 with ⟨%g6, F10, R6⟩
        ihave S11 := (Entails.of_eq (outSlotV_pos d L fx hm1)) $$ S11
        icases S11 with ⟨%g7, F11, R7⟩
        ihave HX := (Entails.of_eq (xSet_out (xP d L fx) k.val hk)) $$ HX
        icases HX with ⟨X2, X3, HX⟩
        ihave X2 := (Entails.of_eq (xP_pos d L fx v2)) $$ X2
        ihave X2 := (Entails.of_eq (in_congr d L (off_6 L k v2).symm (in_inb L _) (k15_off6_inb L k k15_h3) fx)) $$ X2
        ihave X3 := (Entails.of_eq (xP_pos d L fx v3')) $$ X3
        ihave X3 := (Entails.of_eq (in_congr d L (off_11 L k v3').symm (in_inb L _) (k15_off11_inb L k k15_h6) fx)) $$ X3
        ihave HOut := (Entails.of_eq (oSet_out (oMix d L fx k.val) k.val hk)) $$ HOut
        icases HOut with ⟨Y0, Y1, HOut⟩
        ihave Y0 := (Entails.of_eq ((oMix_ge d L fx (t := k.val) (n := 2 * k.val) (by omega)).trans (oP_pos (F := F) d L v0))) $$ Y0
        icases Y0 with ⟨%f0, Y0⟩
        ihave Y0 := (Entails.of_eq (out_congr d L (off_5 L k v0).symm (out_inb L _) (k15_off5_inb L k k15_h2) f0)) $$ Y0
        ihave Y1 := (Entails.of_eq ((oMix_ge d L fx (t := k.val) (n := 2 * k.val + 1) (by omega)).trans (oP_pos (F := F) d L v1))) $$ Y1
        icases Y1 with ⟨%f1, Y1⟩
        ihave Y1 := (Entails.of_eq (out_congr d L (off_10 L k v1).symm (out_inb L _) (k15_off10_inb L k k15_h5) f1)) $$ Y1
        sl_exec
        sl_for (laneV0 d L g4) $$ [F8_dst R6]
        case region =>
          intro (j : Fin k15_t2_loop.trips) _
          unfold laneV0
          iintro ⟨HA, %g, HB, %hl⟩
          sl_exec
          sl_step
          isplitl [HA]; · iexact HA
          iexists _; isplitl [HB]; · iexact HB
          ipureintro; exact lanes_step d L a4 a6 g4 g j _ _ hl
        · unfold laneV0
          isplitl [F8_dst]; · iexact F8_dst
          iexists _; isplitl [R6]; · iexact R6
          ipureintro; exact lanes_zero d L a4 a6 g4 _
        iintro %_ HI
        unfold laneV0
        icases HI with ⟨H4, %g6', H6, %hl6⟩
        have hl6 : Lanes d L a4 a6 g4 g6' 200 := Eq.mp (congrArg (Lanes d L a4 a6 g4 g6') trips2) hl6
        sl_exec
        sl_for (laneV1 d L g5) $$ [F9_dst R7]
        case region =>
          intro (j : Fin k15_t3_loop.trips) _
          unfold laneV1
          iintro ⟨HA, %g, HB, %hl⟩
          sl_exec
          sl_step
          isplitl [HA]; · iexact HA
          iexists _; isplitl [HB]; · iexact HB
          ipureintro; exact lanes_step' d L a5 a7 g5 g j _ _ hl
        · unfold laneV1
          isplitl [F9_dst]; · iexact F9_dst
          iexists _; isplitl [R7]; · iexact R7
          ipureintro; exact lanes_zero d L a5 a7 g5 _
        iintro %_ HI
        unfold laneV1
        icases HI with ⟨H5, %g7', H7, %hl7⟩
        have hl7 : Lanes d L a5 a7 g5 g7' 200 := Eq.mp (congrArg (Lanes d L a5 a7 g5 g7') trips3) hl7
        sl_exec
        sl_step
        isplitr; · iexact Hmw
        isplitl [HO]
        · iexists _; isplitr
          rotate_left
          · iexact HO
          ipureintro; intro p hp
          rcases Finset.mem_insert.mp hp with rfl | hp
          · exact .inr rfl
          rcases Finset.mem_insert.mp hp with rfl | hp
          · exact .inr rfl
          rcases Finset.mem_insert.mp hp with rfl | hp
          · exact .inr rfl
          rcases Finset.mem_insert.mp hp with rfl | hp
          · exact .inr rfl
          exact hW' p hp
        isplitl [HX F8_src F9_src]
        · iapply (Entails.of_eq (xSet_in (xP d L fx) k.val hk).symm)
          isplitl [F8_src]; · iapply (Entails.of_eq (xP_pos d L fx v0).symm); iexact F8_src
          isplitl [F9_src]; · iapply (Entails.of_eq (xP_pos d L fx v1).symm); iexact F9_src
          iexact HX
        isplitl [HOut F10_dst F11_dst]
        · iapply (Entails.of_eq (oSet_in (oMix d L fx (k.val + 1)) k.val hk (by omega)).symm)
          isplitl [F10_dst]; · iapply (Entails.of_eq ((oMix_lt d L fx (t := k.val + 1) (n := 2 * k.val - 2) (by omega)).trans (oQ_pos d L fx hm0.2)).symm); iexact F10_dst
          isplitl [F11_dst]
          · iapply (Entails.of_eq ((oMix_lt d L fx (t := k.val + 1) (n := 2 * k.val - 1) (by omega)).trans (oQ_pos d L fx (n := 2 * k.val - 1) (by have := hm1.2; rwa [show 2 * k.val + 1 - 2 = 2 * k.val - 1 by omega] at this))).symm)
            iapply (Entails.of_eq (congrArg (oqPiece d L fx) (show 2 * k.val + 1 - 2 = 2 * k.val - 1 by omega))); iexact F11_dst
          iapply (Entails.of_eq (oMix_core d L fx k.val)); iexact HOut
        isplitl [F8]
        · iapply (Entails.of_eq (congrArg (inSlotV d L fx a4 cc15_scratch4.sem) (show 2 * k.val + 2 = 2 * (k.val + 1) by ring)))
          iapply (fl_inV d L fx (off_6 L k v2) (k15_off6_inb L k k15_h3) v2 a4 cc15_scratch4.sem); iexists _, _
          isplitr
          rotate_left
          · iexact F8
          ipureintro; intro y; rfl
        isplitl [F10 H6]
        · iapply (Entails.of_eq (congrArg (outSlotV d L fx a6 cc15_scratch6.sem) (show 2 * k.val + 2 = 2 * (k.val + 1) by ring)))
          iapply (fl_outV d L fx (off_5 L k v0) (k15_off5_inb L k k15_h2) v0 a4 a6 cc15_scratch6.sem f0 g4 g6' hl6 hin4); iexists _
          isplitr
          rotate_left
          · isplitl [F10]; · iexact F10
            iexact H6
          ipureintro; intro y; rfl
        isplitl [F9]
        · iapply (Entails.of_eq (congrArg (inSlotV d L fx a5 cc15_scratch5.sem) (show 2 * k.val + 3 = 2 * (k.val + 1) + 1 by ring)))
          iapply (fl_inV d L fx (off_11 L k v3') (k15_off11_inb L k k15_h6) v3' a5 cc15_scratch5.sem); iexists _, _
          isplitr
          rotate_left
          · iexact F9
          ipureintro; intro y; rfl
        · iapply (Entails.of_eq (congrArg (outSlotV d L fx a7 cc15_scratch7.sem) (show 2 * k.val + 1 + 2 = 2 * (k.val + 1) + 1 by ring)))
          iapply (fl_outV d L fx (off_10 L k v1) (k15_off10_inb L k k15_h5) v1 a5 a7 cc15_scratch7.sem f1 g5 g7' hl7 hin5); iexists _
          isplitr
          rotate_left
          · isplitl [F11]; · iexact F11
            iexact H7
          ipureintro; intro y; rfl
      · by_cases h6 : k.val = 6
        · have hb : ¬ big L := fun hb => v3 (Or.inr ⟨by omega, hb⟩)
          -- trip 6 of a tile with fifteen pieces: no sixteenth piece to fetch
          have k15_h1 : k15_cond1 k = 1#1 := (cond1_iff k).mpr (by omega)
          have k15_h2 : k15_cond2 L k = 1#1 := cond2_iff L k
          have k15_h3 : k15_cond3 L k = 1#1 := (cond3_iff L k).mpr (by omega)
          have k15_h4 : k15_cond4 k = 1#1 := (cond4_iff k).mpr (by omega)
          have k15_h5 : k15_cond5 L k = 1#1 := (cond5_iff L k).mpr (by first | (unfold valid big at *; omega) | (unfold big at *; omega) | omega)
          have k15_h6 : ¬ k15_cond6 L k = 1#1 := fun h => absurd ((cond6_iff L k).mp h) (by first | (unfold valid big at *; omega) | (unfold big at *; omega) | omega)
          have v0 : valid L (2 * k.val) := by unfold valid big at *; omega
          have v1 : valid L (2 * k.val + 1) := by unfold valid big at *; omega
          have v2 : valid L (2 * k.val + 2) := by unfold valid big at *; omega
          have v3' : ¬ valid L (2 * k.val + 3) := by unfold valid big at *; omega
          have hm0 : 2 ≤ 2 * k.val ∧ valid L (2 * k.val - 2) := ⟨by omega, by unfold valid big at *; omega⟩
          have hm1 : 2 ≤ 2 * k.val + 1 ∧ valid L (2 * k.val + 1 - 2) := ⟨by omega, by unfold valid big at *; omega⟩
          ihave S8 := (Entails.of_eq (inSlotV_pos d L fx v0)) $$ S8
          icases S8 with ⟨%g4, %hin4, F8⟩
          ihave S9 := (Entails.of_eq (inSlotV_pos d L fx v1)) $$ S9
          icases S9 with ⟨%g5, %hin5, F9⟩
          ihave S10 := (Entails.of_eq (outSlotV_pos d L fx hm0)) $$ S10
          icases S10 with ⟨%g6, F10, R6⟩
          ihave S11 := (Entails.of_eq (outSlotV_pos d L fx hm1)) $$ S11
          icases S11 with ⟨%g7, F11, R7⟩
          ihave HX := (Entails.of_eq (xSet_out (xP d L fx) k.val hk)) $$ HX
          icases HX with ⟨X2, -, HX⟩
          ihave X2 := (Entails.of_eq (xP_pos d L fx v2)) $$ X2
          ihave X2 := (Entails.of_eq (in_congr d L (off_6 L k v2).symm (in_inb L _) (k15_off6_inb L k k15_h3) fx)) $$ X2
          ihave HOut := (Entails.of_eq (oSet_out (oMix d L fx k.val) k.val hk)) $$ HOut
          icases HOut with ⟨Y0, Y1, HOut⟩
          ihave Y0 := (Entails.of_eq ((oMix_ge d L fx (t := k.val) (n := 2 * k.val) (by omega)).trans (oP_pos (F := F) d L v0))) $$ Y0
          icases Y0 with ⟨%f0, Y0⟩
          ihave Y0 := (Entails.of_eq (out_congr d L (off_5 L k v0).symm (out_inb L _) (k15_off5_inb L k k15_h2) f0)) $$ Y0
          ihave Y1 := (Entails.of_eq ((oMix_ge d L fx (t := k.val) (n := 2 * k.val + 1) (by omega)).trans (oP_pos (F := F) d L v1))) $$ Y1
          icases Y1 with ⟨%f1, Y1⟩
          ihave Y1 := (Entails.of_eq (out_congr d L (off_10 L k v1).symm (out_inb L _) (k15_off10_inb L k k15_h5) f1)) $$ Y1
          sl_exec
          sl_for (laneV0 d L g4) $$ [F8_dst R6]
          case region =>
            intro (j : Fin k15_t2_loop.trips) _
            unfold laneV0
            iintro ⟨HA, %g, HB, %hl⟩
            sl_exec
            sl_step
            isplitl [HA]; · iexact HA
            iexists _; isplitl [HB]; · iexact HB
            ipureintro; exact lanes_step d L a4 a6 g4 g j _ _ hl
          · unfold laneV0
            isplitl [F8_dst]; · iexact F8_dst
            iexists _; isplitl [R6]; · iexact R6
            ipureintro; exact lanes_zero d L a4 a6 g4 _
          iintro %_ HI
          unfold laneV0
          icases HI with ⟨H4, %g6', H6, %hl6⟩
          have hl6 : Lanes d L a4 a6 g4 g6' 200 := Eq.mp (congrArg (Lanes d L a4 a6 g4 g6') trips2) hl6
          sl_exec
          sl_for (laneV1 d L g5) $$ [F9_dst R7]
          case region =>
            intro (j : Fin k15_t3_loop.trips) _
            unfold laneV1
            iintro ⟨HA, %g, HB, %hl⟩
            sl_exec
            sl_step
            isplitl [HA]; · iexact HA
            iexists _; isplitl [HB]; · iexact HB
            ipureintro; exact lanes_step' d L a5 a7 g5 g j _ _ hl
          · unfold laneV1
            isplitl [F9_dst]; · iexact F9_dst
            iexists _; isplitl [R7]; · iexact R7
            ipureintro; exact lanes_zero d L a5 a7 g5 _
          iintro %_ HI
          unfold laneV1
          icases HI with ⟨H5, %g7', H7, %hl7⟩
          have hl7 : Lanes d L a5 a7 g5 g7' 200 := Eq.mp (congrArg (Lanes d L a5 a7 g5 g7') trips3) hl7
          sl_exec
          sl_step
          isplitr; · iexact Hmw
          isplitl [HO]
          · iexists _; isplitr
            rotate_left
            · iexact HO
            ipureintro; intro p hp
            rcases Finset.mem_insert.mp hp with rfl | hp
            · exact .inr rfl
            rcases Finset.mem_insert.mp hp with rfl | hp
            · exact .inr rfl
            rcases Finset.mem_insert.mp hp with rfl | hp
            · exact .inr rfl
            rcases Finset.mem_insert.mp hp with rfl | hp
            · exact .inr rfl
            exact hW' p hp
          isplitl [HX F8_src F9_src]
          · iapply (Entails.of_eq (xSet_in (xP d L fx) k.val hk).symm)
            isplitl [F8_src]; · iapply (Entails.of_eq (xP_pos d L fx v0).symm); iexact F8_src
            isplitl [F9_src]; · iapply (Entails.of_eq (xP_pos d L fx v1).symm); iexact F9_src
            iexact HX
          isplitl [HOut F10_dst F11_dst]
          · iapply (Entails.of_eq (oSet_in (oMix d L fx (k.val + 1)) k.val hk (by omega)).symm)
            isplitl [F10_dst]; · iapply (Entails.of_eq ((oMix_lt d L fx (t := k.val + 1) (n := 2 * k.val - 2) (by omega)).trans (oQ_pos d L fx hm0.2)).symm); iexact F10_dst
            isplitl [F11_dst]
            · iapply (Entails.of_eq ((oMix_lt d L fx (t := k.val + 1) (n := 2 * k.val - 1) (by omega)).trans (oQ_pos d L fx (n := 2 * k.val - 1) (by have := hm1.2; rwa [show 2 * k.val + 1 - 2 = 2 * k.val - 1 by omega] at this))).symm)
              iapply (Entails.of_eq (congrArg (oqPiece d L fx) (show 2 * k.val + 1 - 2 = 2 * k.val - 1 by omega))); iexact F11_dst
            iapply (Entails.of_eq (oMix_core d L fx k.val)); iexact HOut
          isplitl [F8]
          · iapply (Entails.of_eq (congrArg (inSlotV d L fx a4 cc15_scratch4.sem) (show 2 * k.val + 2 = 2 * (k.val + 1) by ring)))
            iapply (fl_inV d L fx (off_6 L k v2) (k15_off6_inb L k k15_h3) v2 a4 cc15_scratch4.sem); iexists _, _
            isplitr
            rotate_left
            · iexact F8
            ipureintro; intro y; rfl
          isplitl [F10 H6]
          · iapply (Entails.of_eq (congrArg (outSlotV d L fx a6 cc15_scratch6.sem) (show 2 * k.val + 2 = 2 * (k.val + 1) by ring)))
            iapply (fl_outV d L fx (off_5 L k v0) (k15_off5_inb L k k15_h2) v0 a4 a6 cc15_scratch6.sem f0 g4 g6' hl6 hin4); iexists _
            isplitr
            rotate_left
            · isplitl [F10]; · iexact F10
              iexact H6
            ipureintro; intro y; rfl
          isplitl [H5 F9]
          · iapply (Entails.of_eq (congrArg (inSlotV d L fx a5 cc15_scratch5.sem) (show 2 * k.val + 3 = 2 * (k.val + 1) + 1 by ring)))
            iapply (Entails.of_eq (inSlotV_neg d L fx v3').symm)
            isplitl [H5]; · iexists _; iexact H5
            iexact F9
          · iapply (Entails.of_eq (congrArg (outSlotV d L fx a7 cc15_scratch7.sem) (show 2 * k.val + 1 + 2 = 2 * (k.val + 1) + 1 by ring)))
            iapply (fl_outV d L fx (off_10 L k v1) (k15_off10_inb L k k15_h5) v1 a5 a7 cc15_scratch7.sem f1 g5 g7' hl7 hin5); iexists _
            isplitr
            rotate_left
            · isplitl [F11]; · iexact F11
              iexact H7
            ipureintro; intro y; rfl
        · have h7 : k.val = 7 := by unfold valid at v3; omega
          by_cases hb : big L
          · -- the last trip of a tile with sixteen pieces: nothing more to fetch
            have k15_h1 : k15_cond1 k = 1#1 := (cond1_iff k).mpr (by omega)
            have k15_h2 : k15_cond2 L k = 1#1 := cond2_iff L k
            have k15_h3 : ¬ k15_cond3 L k = 1#1 := fun h => absurd ((cond3_iff L k).mp h) (by omega)
            have k15_h4 : k15_cond4 k = 1#1 := (cond4_iff k).mpr (by omega)
            have k15_h5 : k15_cond5 L k = 1#1 := (cond5_iff L k).mpr (by first | (unfold valid big at *; omega) | (unfold big at *; omega) | omega)
            have k15_h6 : ¬ k15_cond6 L k = 1#1 := fun h => absurd ((cond6_iff L k).mp h) (by first | (unfold valid big at *; omega) | (unfold big at *; omega) | omega)
            have v0 : valid L (2 * k.val) := by unfold valid big at *; omega
            have v1 : valid L (2 * k.val + 1) := by unfold valid big at *; omega
            have v2 : ¬ valid L (2 * k.val + 2) := by unfold valid big at *; omega
            have v3' : ¬ valid L (2 * k.val + 3) := by unfold valid big at *; omega
            have hm0 : 2 ≤ 2 * k.val ∧ valid L (2 * k.val - 2) := ⟨by omega, by unfold valid big at *; omega⟩
            have hm1 : 2 ≤ 2 * k.val + 1 ∧ valid L (2 * k.val + 1 - 2) := ⟨by omega, by unfold valid big at *; omega⟩
            ihave S8 := (Entails.of_eq (inSlotV_pos d L fx v0)) $$ S8
            icases S8 with ⟨%g4, %hin4, F8⟩
            ihave S9 := (Entails.of_eq (inSlotV_pos d L fx v1)) $$ S9
            icases S9 with ⟨%g5, %hin5, F9⟩
            ihave S10 := (Entails.of_eq (outSlotV_pos d L fx hm0)) $$ S10
            icases S10 with ⟨%g6, F10, R6⟩
            ihave S11 := (Entails.of_eq (outSlotV_pos d L fx hm1)) $$ S11
            icases S11 with ⟨%g7, F11, R7⟩
            ihave HX := (Entails.of_eq (xSet_out (xP d L fx) k.val hk)) $$ HX
            icases HX with ⟨-, -, HX⟩
            ihave HOut := (Entails.of_eq (oSet_out (oMix d L fx k.val) k.val hk)) $$ HOut
            icases HOut with ⟨Y0, Y1, HOut⟩
            ihave Y0 := (Entails.of_eq ((oMix_ge d L fx (t := k.val) (n := 2 * k.val) (by omega)).trans (oP_pos (F := F) d L v0))) $$ Y0
            icases Y0 with ⟨%f0, Y0⟩
            ihave Y0 := (Entails.of_eq (out_congr d L (off_5 L k v0).symm (out_inb L _) (k15_off5_inb L k k15_h2) f0)) $$ Y0
            ihave Y1 := (Entails.of_eq ((oMix_ge d L fx (t := k.val) (n := 2 * k.val + 1) (by omega)).trans (oP_pos (F := F) d L v1))) $$ Y1
            icases Y1 with ⟨%f1, Y1⟩
            ihave Y1 := (Entails.of_eq (out_congr d L (off_10 L k v1).symm (out_inb L _) (k15_off10_inb L k k15_h5) f1)) $$ Y1
            sl_exec
            sl_for (laneV0 d L g4) $$ [F8_dst R6]
            case region =>
              intro (j : Fin k15_t2_loop.trips) _
              unfold laneV0
              iintro ⟨HA, %g, HB, %hl⟩
              sl_exec
              sl_step
              isplitl [HA]; · iexact HA
              iexists _; isplitl [HB]; · iexact HB
              ipureintro; exact lanes_step d L a4 a6 g4 g j _ _ hl
            · unfold laneV0
              isplitl [F8_dst]; · iexact F8_dst
              iexists _; isplitl [R6]; · iexact R6
              ipureintro; exact lanes_zero d L a4 a6 g4 _
            iintro %_ HI
            unfold laneV0
            icases HI with ⟨H4, %g6', H6, %hl6⟩
            have hl6 : Lanes d L a4 a6 g4 g6' 200 := Eq.mp (congrArg (Lanes d L a4 a6 g4 g6') trips2) hl6
            sl_exec
            sl_for (laneV1 d L g5) $$ [F9_dst R7]
            case region =>
              intro (j : Fin k15_t3_loop.trips) _
              unfold laneV1
              iintro ⟨HA, %g, HB, %hl⟩
              sl_exec
              sl_step
              isplitl [HA]; · iexact HA
              iexists _; isplitl [HB]; · iexact HB
              ipureintro; exact lanes_step' d L a5 a7 g5 g j _ _ hl
            · unfold laneV1
              isplitl [F9_dst]; · iexact F9_dst
              iexists _; isplitl [R7]; · iexact R7
              ipureintro; exact lanes_zero d L a5 a7 g5 _
            iintro %_ HI
            unfold laneV1
            icases HI with ⟨H5, %g7', H7, %hl7⟩
            have hl7 : Lanes d L a5 a7 g5 g7' 200 := Eq.mp (congrArg (Lanes d L a5 a7 g5 g7') trips3) hl7
            sl_exec
            sl_step
            isplitr; · iexact Hmw
            isplitl [HO]
            · iexists _; isplitr
              rotate_left
              · iexact HO
              ipureintro; intro p hp
              rcases Finset.mem_insert.mp hp with rfl | hp
              · exact .inr rfl
              rcases Finset.mem_insert.mp hp with rfl | hp
              · exact .inr rfl
              rcases Finset.mem_insert.mp hp with rfl | hp
              · exact .inr rfl
              rcases Finset.mem_insert.mp hp with rfl | hp
              · exact .inr rfl
              exact hW' p hp
            isplitl [HX F8_src F9_src]
            · iapply (Entails.of_eq (xSet_in (xP d L fx) k.val hk).symm)
              isplitl [F8_src]; · iapply (Entails.of_eq (xP_pos d L fx v0).symm); iexact F8_src
              isplitl [F9_src]; · iapply (Entails.of_eq (xP_pos d L fx v1).symm); iexact F9_src
              iexact HX
            isplitl [HOut F10_dst F11_dst]
            · iapply (Entails.of_eq (oSet_in (oMix d L fx (k.val + 1)) k.val hk (by omega)).symm)
              isplitl [F10_dst]; · iapply (Entails.of_eq ((oMix_lt d L fx (t := k.val + 1) (n := 2 * k.val - 2) (by omega)).trans (oQ_pos d L fx hm0.2)).symm); iexact F10_dst
              isplitl [F11_dst]
              · iapply (Entails.of_eq ((oMix_lt d L fx (t := k.val + 1) (n := 2 * k.val - 1) (by omega)).trans (oQ_pos d L fx (n := 2 * k.val - 1) (by have := hm1.2; rwa [show 2 * k.val + 1 - 2 = 2 * k.val - 1 by omega] at this))).symm)
                iapply (Entails.of_eq (congrArg (oqPiece d L fx) (show 2 * k.val + 1 - 2 = 2 * k.val - 1 by omega))); iexact F11_dst
              iapply (Entails.of_eq (oMix_core d L fx k.val)); iexact HOut
            isplitl [H4 F8]
            · iapply (Entails.of_eq (congrArg (inSlotV d L fx a4 cc15_scratch4.sem) (show 2 * k.val + 2 = 2 * (k.val + 1) by ring)))
              iapply (Entails.of_eq (inSlotV_neg d L fx v2).symm)
              isplitl [H4]; · iexists _; iexact H4
              iexact F8
            isplitl [F10 H6]
            · iapply (Entails.of_eq (congrArg (outSlotV d L fx a6 cc15_scratch6.sem) (show 2 * k.val + 2 = 2 * (k.val + 1) by ring)))
              iapply (fl_outV d L fx (off_5 L k v0) (k15_off5_inb L k k15_h2) v0 a4 a6 cc15_scratch6.sem f0 g4 g6' hl6 hin4); iexists _
              isplitr
              rotate_left
              · isplitl [F10]; · iexact F10
                iexact H6
              ipureintro; intro y; rfl
            isplitl [H5 F9]
            · iapply (Entails.of_eq (congrArg (inSlotV d L fx a5 cc15_scratch5.sem) (show 2 * k.val + 3 = 2 * (k.val + 1) + 1 by ring)))
              iapply (Entails.of_eq (inSlotV_neg d L fx v3').symm)
              isplitl [H5]; · iexists _; iexact H5
              iexact F9
            · iapply (Entails.of_eq (congrArg (outSlotV d L fx a7 cc15_scratch7.sem) (show 2 * k.val + 1 + 2 = 2 * (k.val + 1) + 1 by ring)))
              iapply (fl_outV d L fx (off_10 L k v1) (k15_off10_inb L k k15_h5) v1 a5 a7 cc15_scratch7.sem f1 g5 g7' hl7 hin5); iexists _
              isplitr
              rotate_left
              · isplitl [F11]; · iexact F11
                iexact H7
              ipureintro; intro y; rfl
          · -- the last trip of a tile with fifteen pieces: the second slot only drains
            have k15_h1 : k15_cond1 k = 1#1 := (cond1_iff k).mpr (by omega)
            have k15_h2 : k15_cond2 L k = 1#1 := cond2_iff L k
            have k15_h3 : ¬ k15_cond3 L k = 1#1 := fun h => absurd ((cond3_iff L k).mp h) (by omega)
            have k15_h4 : k15_cond4 k = 1#1 := (cond4_iff k).mpr (by omega)
            have k15_h5 : ¬ k15_cond5 L k = 1#1 := fun h => absurd ((cond5_iff L k).mp h) (by first | (unfold valid big at *; omega) | (unfold big at *; omega) | omega)
            have k15_h6 : ¬ k15_cond6 L k = 1#1 := fun h => absurd ((cond6_iff L k).mp h) (by first | (unfold valid big at *; omega) | (unfold big at *; omega) | omega)
            have v0 : valid L (2 * k.val) := by unfold valid big at *; omega
            have v1 : ¬ valid L (2 * k.val + 1) := by unfold valid big at *; omega
            have v2 : ¬ valid L (2 * k.val + 2) := by unfold valid big at *; omega
            have v3' : ¬ valid L (2 * k.val + 3) := by unfold valid big at *; omega
            have hm0 : 2 ≤ 2 * k.val ∧ valid L (2 * k.val - 2) := ⟨by omega, by unfold valid big at *; omega⟩
            have hm1 : 2 ≤ 2 * k.val + 1 ∧ valid L (2 * k.val + 1 - 2) := ⟨by omega, by unfold valid big at *; omega⟩
            ihave S8 := (Entails.of_eq (inSlotV_pos d L fx v0)) $$ S8
            icases S8 with ⟨%g4, %hin4, F8⟩
            ihave S9 := (Entails.of_eq (inSlotV_neg d L fx v1)) $$ S9
            icases S9 with ⟨⟨%g5, H5⟩, F9⟩
            ihave S10 := (Entails.of_eq (outSlotV_pos d L fx hm0)) $$ S10
            icases S10 with ⟨%g6, F10, R6⟩
            ihave S11 := (Entails.of_eq (outSlotV_pos d L fx hm1)) $$ S11
            icases S11 with ⟨%g7, F11, R7⟩
            ihave HX := (Entails.of_eq (xSet_out (xP d L fx) k.val hk)) $$ HX
            icases HX with ⟨-, -, HX⟩
            ihave HOut := (Entails.of_eq (oSet_out (oMix d L fx k.val) k.val hk)) $$ HOut
            icases HOut with ⟨Y0, -, HOut⟩
            ihave Y0 := (Entails.of_eq ((oMix_ge d L fx (t := k.val) (n := 2 * k.val) (by omega)).trans (oP_pos (F := F) d L v0))) $$ Y0
            icases Y0 with ⟨%f0, Y0⟩
            ihave Y0 := (Entails.of_eq (out_congr d L (off_5 L k v0).symm (out_inb L _) (k15_off5_inb L k k15_h2) f0)) $$ Y0
            sl_exec
            sl_for (laneV0 d L g4) $$ [F8_dst R6]
            case region =>
              intro (j : Fin k15_t2_loop.trips) _
              unfold laneV0
              iintro ⟨HA, %g, HB, %hl⟩
              sl_exec
              sl_step
              isplitl [HA]; · iexact HA
              iexists _; isplitl [HB]; · iexact HB
              ipureintro; exact lanes_step d L a4 a6 g4 g j _ _ hl
            · unfold laneV0
              isplitl [F8_dst]; · iexact F8_dst
              iexists _; isplitl [R6]; · iexact R6
              ipureintro; exact lanes_zero d L a4 a6 g4 _
            iintro %_ HI
            unfold laneV0
            icases HI with ⟨H4, %g6', H6, %hl6⟩
            have hl6 : Lanes d L a4 a6 g4 g6' 200 := Eq.mp (congrArg (Lanes d L a4 a6 g4 g6') trips2) hl6
            sl_exec
            sl_step
            isplitr; · iexact Hmw
            isplitl [HO]
            · iexists _; isplitr
              rotate_left
              · iexact HO
              ipureintro; intro p hp
              rcases Finset.mem_insert.mp hp with rfl | hp
              · exact .inr rfl
              rcases Finset.mem_insert.mp hp with rfl | hp
              · exact .inr rfl
              rcases Finset.mem_insert.mp hp with rfl | hp
              · exact .inr rfl
              exact hW' p hp
            isplitl [HX F8_src]
            · iapply (Entails.of_eq (xSet_in (xP d L fx) k.val hk).symm)
              isplitl [F8_src]; · iapply (Entails.of_eq (xP_pos d L fx v0).symm); iexact F8_src
              isplitr; · iapply (Entails.of_eq (xP_neg d L fx v1).symm); iempintro
              iexact HX
            isplitl [HOut F10_dst F11_dst]
            · iapply (Entails.of_eq (oSet_in (oMix d L fx (k.val + 1)) k.val hk (by omega)).symm)
              isplitl [F10_dst]; · iapply (Entails.of_eq ((oMix_lt d L fx (t := k.val + 1) (n := 2 * k.val - 2) (by omega)).trans (oQ_pos d L fx hm0.2)).symm); iexact F10_dst
              isplitl [F11_dst]
              · iapply (Entails.of_eq ((oMix_lt d L fx (t := k.val + 1) (n := 2 * k.val - 1) (by omega)).trans (oQ_pos d L fx (n := 2 * k.val - 1) (by have := hm1.2; rwa [show 2 * k.val + 1 - 2 = 2 * k.val - 1 by omega] at this))).symm)
                iapply (Entails.of_eq (congrArg (oqPiece d L fx) (show 2 * k.val + 1 - 2 = 2 * k.val - 1 by omega))); iexact F11_dst
              iapply (Entails.of_eq (oMix_core d L fx k.val)); iexact HOut
            isplitl [H4 F8]
            · iapply (Entails.of_eq (congrArg (inSlotV d L fx a4 cc15_scratch4.sem) (show 2 * k.val + 2 = 2 * (k.val + 1) by ring)))
              iapply (Entails.of_eq (inSlotV_neg d L fx v2).symm)
              isplitl [H4]; · iexists _; iexact H4
              iexact F8
            isplitl [F10 H6]
            · iapply (Entails.of_eq (congrArg (outSlotV d L fx a6 cc15_scratch6.sem) (show 2 * k.val + 2 = 2 * (k.val + 1) by ring)))
              iapply (fl_outV d L fx (off_5 L k v0) (k15_off5_inb L k k15_h2) v0 a4 a6 cc15_scratch6.sem f0 g4 g6' hl6 hin4); iexists _
              isplitr
              rotate_left
              · isplitl [F10]; · iexact F10
                iexact H6
              ipureintro; intro y; rfl
            isplitl [H5 F9]
            · iapply (Entails.of_eq (congrArg (inSlotV d L fx a5 cc15_scratch5.sem) (show 2 * k.val + 3 = 2 * (k.val + 1) + 1 by ring)))
              iapply (Entails.of_eq (inSlotV_neg d L fx v3').symm)
              isplitl [H5]; · iexists _; iexact H5
              iexact F9
            · iapply (Entails.of_eq (outSlotV_neg d L fx (m := 2 * (k.val + 1) + 1) (by intro h; apply v1; have := h.2; rwa [show 2 * (k.val + 1) + 1 - 2 = 2 * k.val + 1 by omega] at this)).symm)
              isplitl [R7]; · iexists _; iexact R7
              iexact F11
    · have hk0 : k.val = 0 := by omega
      -- the first trip: nothing to drain
      have k15_h1 : ¬ k15_cond1 k = 1#1 := fun h => absurd ((cond1_iff k).mp h) (by omega)
      have k15_h2 : k15_cond2 L k = 1#1 := cond2_iff L k
      have k15_h3 : k15_cond3 L k = 1#1 := (cond3_iff L k).mpr (by omega)
      have k15_h4 : ¬ k15_cond4 k = 1#1 := fun h => absurd ((cond4_iff k).mp h) (by omega)
      have k15_h5 : k15_cond5 L k = 1#1 := (cond5_iff L k).mpr (by first | (unfold valid big at *; omega) | (unfold big at *; omega) | omega)
      have k15_h6 : k15_cond6 L k = 1#1 := (cond6_iff L k).mpr (by first | (unfold valid big at *; omega) | (unfold big at *; omega) | omega)
      have v0 : valid L (2 * k.val) := by unfold valid big at *; omega
      have v1 : valid L (2 * k.val + 1) := by unfold valid big at *; omega
      have v2 : valid L (2 * k.val + 2) := by unfold valid big at *; omega
      have v3' : valid L (2 * k.val + 3) := by unfold valid big at *; omega
      have hm0 : ¬ (2 ≤ 2 * k.val ∧ valid L (2 * k.val - 2)) := by omega
      have hm1 : ¬ (2 ≤ 2 * k.val + 1 ∧ valid L (2 * k.val + 1 - 2)) := by omega
      ihave S8 := (Entails.of_eq (inSlotV_pos d L fx v0)) $$ S8
      icases S8 with ⟨%g4, %hin4, F8⟩
      ihave S9 := (Entails.of_eq (inSlotV_pos d L fx v1)) $$ S9
      icases S9 with ⟨%g5, %hin5, F9⟩
      ihave S10 := (Entails.of_eq (outSlotV_neg d L fx hm0)) $$ S10
      icases S10 with ⟨⟨%g6, R6⟩, F10⟩
      ihave S11 := (Entails.of_eq (outSlotV_neg d L fx hm1)) $$ S11
      icases S11 with ⟨⟨%g7, R7⟩, F11⟩
      ihave HX := (Entails.of_eq (xSet_out (xP d L fx) k.val hk)) $$ HX
      icases HX with ⟨X2, X3, HX⟩
      ihave X2 := (Entails.of_eq (xP_pos d L fx v2)) $$ X2
      ihave X2 := (Entails.of_eq (in_congr d L (off_6 L k v2).symm (in_inb L _) (k15_off6_inb L k k15_h3) fx)) $$ X2
      ihave X3 := (Entails.of_eq (xP_pos d L fx v3')) $$ X3
      ihave X3 := (Entails.of_eq (in_congr d L (off_11 L k v3').symm (in_inb L _) (k15_off11_inb L k k15_h6) fx)) $$ X3
      ihave HOut := (Entails.of_eq (oSet_out (oMix d L fx k.val) k.val hk)) $$ HOut
      icases HOut with ⟨Y0, Y1, HOut⟩
      ihave Y0 := (Entails.of_eq ((oMix_ge d L fx (t := k.val) (n := 2 * k.val) (by omega)).trans (oP_pos (F := F) d L v0))) $$ Y0
      icases Y0 with ⟨%f0, Y0⟩
      ihave Y0 := (Entails.of_eq (out_congr d L (off_5 L k v0).symm (out_inb L _) (k15_off5_inb L k k15_h2) f0)) $$ Y0
      ihave Y1 := (Entails.of_eq ((oMix_ge d L fx (t := k.val) (n := 2 * k.val + 1) (by omega)).trans (oP_pos (F := F) d L v1))) $$ Y1
      icases Y1 with ⟨%f1, Y1⟩
      ihave Y1 := (Entails.of_eq (out_congr d L (off_10 L k v1).symm (out_inb L _) (k15_off10_inb L k k15_h5) f1)) $$ Y1
      sl_exec
      sl_for (laneV0 d L g4) $$ [F8_dst R6]
      case region =>
        intro (j : Fin k15_t2_loop.trips) _
        unfold laneV0
        iintro ⟨HA, %g, HB, %hl⟩
        sl_exec
        sl_step
        isplitl [HA]; · iexact HA
        iexists _; isplitl [HB]; · iexact HB
        ipureintro; exact lanes_step d L a4 a6 g4 g j _ _ hl
      · unfold laneV0
        isplitl [F8_dst]; · iexact F8_dst
        iexists _; isplitl [R6]; · iexact R6
        ipureintro; exact lanes_zero d L a4 a6 g4 _
      iintro %_ HI
      unfold laneV0
      icases HI with ⟨H4, %g6', H6, %hl6⟩
      have hl6 : Lanes d L a4 a6 g4 g6' 200 := Eq.mp (congrArg (Lanes d L a4 a6 g4 g6') trips2) hl6
      sl_exec
      sl_for (laneV1 d L g5) $$ [F9_dst R7]
      case region =>
        intro (j : Fin k15_t3_loop.trips) _
        unfold laneV1
        iintro ⟨HA, %g, HB, %hl⟩
        sl_exec
        sl_step
        isplitl [HA]; · iexact HA
        iexists _; isplitl [HB]; · iexact HB
        ipureintro; exact lanes_step' d L a5 a7 g5 g j _ _ hl
      · unfold laneV1
        isplitl [F9_dst]; · iexact F9_dst
        iexists _; isplitl [R7]; · iexact R7
        ipureintro; exact lanes_zero d L a5 a7 g5 _
      iintro %_ HI
      unfold laneV1
      icases HI with ⟨H5, %g7', H7, %hl7⟩
      have hl7 : Lanes d L a5 a7 g5 g7' 200 := Eq.mp (congrArg (Lanes d L a5 a7 g5 g7') trips3) hl7
      sl_exec
      sl_step
      isplitr; · iexact Hmw
      isplitl [HO]
      · iexists _; isplitr
        rotate_left
        · iexact HO
        ipureintro; intro p hp
        rcases Finset.mem_insert.mp hp with rfl | hp
        · exact .inr rfl
        rcases Finset.mem_insert.mp hp with rfl | hp
        · exact .inr rfl
        exact hW' p hp
      isplitl [HX F8_src F9_src]
      · iapply (Entails.of_eq (xSet_in (xP d L fx) k.val hk).symm)
        isplitl [F8_src]; · iapply (Entails.of_eq (xP_pos d L fx v0).symm); iexact F8_src
        isplitl [F9_src]; · iapply (Entails.of_eq (xP_pos d L fx v1).symm); iexact F9_src
        iexact HX
      isplitl [HOut]
      · iapply (Entails.of_eq (congrArg (fun s => bigSep s (oMix d L fx (k.val + 1))) (show oCore k.val = oSet (k.val + 1) by rw [hk0]; decide)))
        iapply (Entails.of_eq (oMix_core d L fx k.val)); iexact HOut
      isplitl [F8]
      · iapply (Entails.of_eq (congrArg (inSlotV d L fx a4 cc15_scratch4.sem) (show 2 * k.val + 2 = 2 * (k.val + 1) by ring)))
        iapply (fl_inV d L fx (off_6 L k v2) (k15_off6_inb L k k15_h3) v2 a4 cc15_scratch4.sem); iexists _, _
        isplitr
        rotate_left
        · iexact F8
        ipureintro; intro y; rfl
      isplitl [F10 H6]
      · iapply (Entails.of_eq (congrArg (outSlotV d L fx a6 cc15_scratch6.sem) (show 2 * k.val + 2 = 2 * (k.val + 1) by ring)))
        iapply (fl_outV d L fx (off_5 L k v0) (k15_off5_inb L k k15_h2) v0 a4 a6 cc15_scratch6.sem f0 g4 g6' hl6 hin4); iexists _
        isplitr
        rotate_left
        · isplitl [F10]; · iexact F10
          iexact H6
        ipureintro; intro y; rfl
      isplitl [F9]
      · iapply (Entails.of_eq (congrArg (inSlotV d L fx a5 cc15_scratch5.sem) (show 2 * k.val + 3 = 2 * (k.val + 1) + 1 by ring)))
        iapply (fl_inV d L fx (off_11 L k v3') (k15_off11_inb L k k15_h6) v3' a5 cc15_scratch5.sem); iexists _, _
        isplitr
        rotate_left
        · iexact F9
        ipureintro; intro y; rfl
      · iapply (Entails.of_eq (congrArg (outSlotV d L fx a7 cc15_scratch7.sem) (show 2 * k.val + 1 + 2 = 2 * (k.val + 1) + 1 by ring)))
        iapply (fl_outV d L fx (off_10 L k v1) (k15_off10_inb L k k15_h5) v1 a5 a7 cc15_scratch7.sem f1 g5 g7' hl7 hin5); iexists _
        isplitr
        rotate_left
        · isplitl [F11]; · iexact F11
          iexact H7
        ipureintro; intro y; rfl
  · unfold invV
    isplitr; · iexact Hmw
    isplitl [HO]
    · iexists W; isplitr
      · ipureintro; exact fun p hp => .inl hp
      · iexact HO
    isplitl [HX]; · iexact HX
    isplitl [HOut]; · iapply (Entails.of_eq (oMix_zero d L fx).symm); iexact HOut
    isplitl [S8]; · iexact S8
    isplitl [H6 Hs10]
    · rw [outSlotV_neg d L fx (by omega)]; isplitl [H6]; · iexists _; iexact H6
      iexact Hs10
    isplitl [S9]; · iexact S9
    rw [outSlotV_neg d L fx (by omega)]; isplitl [H7]; · iexists _; iexact H7
    iexact Hs11
  iintro %acc' HI
  ihave HI := (Entails.of_eq (congrArg (fun t => invV d L O W fx t acc') trips1)) $$ HI
  unfold invV
  icases HI with ⟨-, ⟨%W', %hW', HO⟩, HX, HOut, S8, S10, S9, S11⟩
  have nv16 : ¬ valid L (2 * 8) := by unfold valid; omega
  have nv17 : ¬ valid L (2 * 8 + 1) := by unfold valid; omega
  have hm14 : 2 ≤ 2 * 8 ∧ valid L (2 * 8 - 2) := ⟨by omega, Or.inl (by omega)⟩
  ihave S8 := (Entails.of_eq (inSlotV_neg d L fx nv16)) $$ S8
  icases S8 with ⟨⟨%g4', H4⟩, Hs8⟩
  ihave S9 := (Entails.of_eq (inSlotV_neg d L fx nv17)) $$ S9
  icases S9 with ⟨⟨%g5', H5⟩, Hs9⟩
  ihave S10 := (Entails.of_eq (outSlotV_pos d L fx hm14)) $$ S10
  icases S10 with ⟨%g6', F10, R6⟩
  by_cases hb : big L
  · have k15_h8 : k15_cond8 L = 1#1 := (cond8_iff L).mpr hb
    have hm15 : 2 ≤ 2 * 8 + 1 ∧ valid L (2 * 8 + 1 - 2) := ⟨by omega, Or.inr ⟨by omega, hb⟩⟩
    ihave S11 := (Entails.of_eq (outSlotV_pos d L fx hm15)) $$ S11
    icases S11 with ⟨%g7', F11, R7⟩
    sl_exec
    sl_step
    isplitl [HX]; · iapply (xRange_end d L fx); iexact HX
    isplitl [HOut F10_dst F11_dst]
    · iapply (Entails.of_eq (oRange_end (oQ d L fx)).symm)
      isplitl [F10_dst]; · iapply (Entails.of_eq (oQ_pos d L fx hm14.2).symm); iexact F10_dst
      isplitl [F11_dst]; · iapply (Entails.of_eq (oQ_pos d L fx hm15.2).symm); iexact F11_dst
      iapply (Entails.of_eq (oMix_end d L fx)); iexact HOut
    isplitl [H4]; · iexists _; iexact H4
    isplitl [H5]; · iexists _; iexact H5
    isplitl [R6]; · iexists _; iexact R6
    isplitl [R7]; · iexists _; iexact R7
    isplitl [Hs8]; · iexact Hs8
    isplitl [Hs9]; · iexact Hs9
    isplitl [F10]; · iexact F10
    isplitl [F11]; · iexact F11
    isplitl [HO]
    · iexists _; isplitr
      rotate_left
      · iexact HO
      ipureintro; intro p hp
      rcases Finset.mem_insert.mp hp with rfl | hp
      · exact .inr rfl
      rcases Finset.mem_insert.mp hp with rfl | hp
      · exact .inr rfl
      exact hW' p hp
    iexact HR
  · have k15_h8 : ¬ k15_cond8 L = 1#1 := fun h => hb ((cond8_iff L).mp h)
    have hm15 : ¬ (2 ≤ 2 * 8 + 1 ∧ valid L (2 * 8 + 1 - 2)) := by intro h; have := h.2; unfold valid at this; omega
    ihave S11 := (Entails.of_eq (outSlotV_neg d L fx hm15)) $$ S11
    icases S11 with ⟨⟨%g7', R7⟩, F11⟩
    sl_exec
    sl_step
    isplitl [HX]; · iapply (xRange_end d L fx); iexact HX
    isplitl [HOut F10_dst]
    · iapply (Entails.of_eq (oRange_end (oQ d L fx)).symm)
      isplitl [F10_dst]; · iapply (Entails.of_eq (oQ_pos d L fx hm14.2).symm); iexact F10_dst
      isplitr; · iapply (Entails.of_eq (oQ_neg d L fx (n := 15) (by unfold valid; omega)).symm); iempintro
      iapply (Entails.of_eq (oMix_end d L fx)); iexact HOut
    isplitl [H4]; · iexists _; iexact H4
    isplitl [H5]; · iexists _; iexact H5
    isplitl [R6]; · iexists _; iexact R6
    isplitl [R7]; · iexists _; iexact R7
    isplitl [Hs8]; · iexact Hs8
    isplitl [Hs9]; · iexact Hs9
    isplitl [F10]; · iexact F10
    isplitl [F11]; · iexact F11
    isplitl [HO]
    · iexists _; isplitr
      rotate_left
      · iexact HO
      ipureintro; intro p hp
      rcases Finset.mem_insert.mp hp with rfl | hp
      · exact .inr rfl
      exact hW' p hp
    iexact HR

/-! The subcore's scoped storage: the four staging buffers and the four semaphores of this call, and the rest. -/

abbrev c8 : GSem nD τ sig := (thr d L, SemLoc.dma cc15_scratch4.sem)
abbrev c9 : GSem nD τ sig := (thr d L, SemLoc.dma cc15_scratch5.sem)
abbrev c10 : GSem nD τ sig := (thr d L, SemLoc.dma cc15_scratch6.sem)
abbrev c11 : GSem nD τ sig := (thr d L, SemLoc.dma cc15_scratch7.sem)

omit [FloatOps F] in
theorem ownSems0_V :
    (ownSems0 (thr d L) : sProp 𝕄)
      = iprop(semVal (c8 d L) 0 ∗ semVal (c9 d L) 0 ∗ semVal (c10 d L) 0 ∗ semVal (c11 d L) 0
          ∗ bigSep (((((ownCells (thr d L)).erase (c8 d L)).erase (c9 d L)).erase (c10 d L)).erase (c11 d L)) fun g => semVal g 0) := by
  unfold SparseCore.Cfg.ownSems0
  rw [SparseCore.bigSep_erase' ((mem_ownCells (g := c8 d L)).mpr ⟨rfl, by
      show (SemLoc.dma cc15_scratch4.sem : SemLoc sig).isScoped .scVector = true; decide⟩),
    SparseCore.bigSep_erase' (Finset.mem_erase.mpr ⟨fun e => absurd (Prod.mk.inj e).2 (by decide), (mem_ownCells (g := c9 d L)).mpr ⟨rfl, by
      show (SemLoc.dma cc15_scratch5.sem : SemLoc sig).isScoped .scVector = true; decide⟩⟩),
    SparseCore.bigSep_erase' (Finset.mem_erase.mpr ⟨fun e => absurd (Prod.mk.inj e).2 (by decide), Finset.mem_erase.mpr ⟨fun e => absurd (Prod.mk.inj e).2 (by decide),
      (mem_ownCells (g := c10 d L)).mpr ⟨rfl, by show (SemLoc.dma cc15_scratch6.sem : SemLoc sig).isScoped .scVector = true; decide⟩⟩⟩),
    SparseCore.bigSep_erase' (Finset.mem_erase.mpr ⟨fun e => absurd (Prod.mk.inj e).2 (by decide), Finset.mem_erase.mpr ⟨fun e => absurd (Prod.mk.inj e).2 (by decide),
      Finset.mem_erase.mpr ⟨fun e => absurd (Prod.mk.inj e).2 (by decide),
      (mem_ownCells (g := c11 d L)).mpr ⟨rfl, by show (SemLoc.dma cc15_scratch7.sem : SemLoc sig).isScoped .scVector = true; decide⟩⟩⟩⟩)]

abbrev pV (L : grid15.Coords) : Proc τ := Proc.scVector (cV L) (jV L)

omit [FloatOps F] in
theorem ownBufs_V :
    (ownBufs (thr d L) : sProp 𝕄)
      = iprop((∃ f, (thr d L).loc cc15_scratch0 ↦{fullShare} f) ∗ (∃ f, (thr d L).loc cc15_scratch1 ↦{fullShare} f)
          ∗ (∃ f, (thr d L).loc cc15_scratch2 ↦{fullShare} f) ∗ (∃ f, (thr d L).loc cc15_scratch3 ↦{fullShare} f)
          ∗ bigSep (((((ownRefs (τ := τ) (pV L)).erase ((pV L).devRef cc15_scratch0)).erase ((pV L).devRef cc15_scratch1)).erase
              ((pV L).devRef cc15_scratch2)).erase ((pV L).devRef cc15_scratch3))
              fun b => iprop(∃ f, ((d, b) : Loc nD τ sig) ↦{fullShare} f)) := by
  unfold SparseCore.Cfg.ownBufs
  refine (SparseCore.bigSep_erase' (SparseCore.Cfg.mem_ownRefs_of_owner (p := pV L) (b := (pV L).devRef cc15_scratch0) rfl)).trans ?_
  rw [SparseCore.bigSep_erase' (Finset.mem_erase.mpr ⟨fun e => absurd (Proc.devRef_injective _ e) (show (cc15_scratch1 : Ref sig .scVector) ≠ cc15_scratch0 by decide),
      SparseCore.Cfg.mem_ownRefs_of_owner (p := pV L) (b := (pV L).devRef cc15_scratch1) rfl⟩),
    SparseCore.bigSep_erase' (Finset.mem_erase.mpr ⟨fun e => absurd (Proc.devRef_injective _ e) (show (cc15_scratch2 : Ref sig .scVector) ≠ cc15_scratch1 by decide),
      Finset.mem_erase.mpr ⟨fun e => absurd (Proc.devRef_injective _ e) (show (cc15_scratch2 : Ref sig .scVector) ≠ cc15_scratch0 by decide),
      SparseCore.Cfg.mem_ownRefs_of_owner (p := pV L) (b := (pV L).devRef cc15_scratch2) rfl⟩⟩),
    SparseCore.bigSep_erase' (Finset.mem_erase.mpr ⟨fun e => absurd (Proc.devRef_injective _ e) (show (cc15_scratch3 : Ref sig .scVector) ≠ cc15_scratch2 by decide),
      Finset.mem_erase.mpr ⟨fun e => absurd (Proc.devRef_injective _ e) (show (cc15_scratch3 : Ref sig .scVector) ≠ cc15_scratch1 by decide),
      Finset.mem_erase.mpr ⟨fun e => absurd (Proc.devRef_injective _ e) (show (cc15_scratch3 : Ref sig .scVector) ≠ cc15_scratch0 by decide),
      SparseCore.Cfg.mem_ownRefs_of_owner (p := pV L) (b := (pV L).devRef cc15_scratch3) rfl⟩⟩⟩)]

/-- The rest of the subcore's scoped storage, which the task does not touch. -/
def restR : sProp 𝕄 :=
  iprop((bigSep (((((ownRefs (τ := τ) (pV L)).erase ((pV L).devRef cc15_scratch0)).erase ((pV L).devRef cc15_scratch1)).erase
              ((pV L).devRef cc15_scratch2)).erase ((pV L).devRef cc15_scratch3))
              fun b => iprop(∃ f, ((d, b) : Loc nD τ sig) ↦{fullShare} f))
      ∗ bigSep (((((ownCells (thr d L)).erase (c8 d L)).erase (c9 d L)).erase (c10 d L)).erase (c11 d L)) fun g => semVal g 0)

theorem body_pre (hO : ∀ g, O g none = 0) :
    iprop(levAts (K (F := F)).L (K (F := F)).lev ∗ emp ∗ goRes d L fx ∗ ownBufs (thr d L) ∗ ownSems0 (thr d L) ∗ owes (thr d L) O W)
      ⊢ runPre d L O W fx (restR (F := F) d L) := by
  rw [ownSems0_V, ownBufs_V]
  unfold goRes runPre restR
  iintro ⟨#Hlv, -, ⟨HX, HOut⟩, ⟨H4, H5, H6, H7, Hbufs⟩, ⟨Hs8, Hs9, Hs10, Hs11, Hsems⟩, HO⟩
  ihave Hmw := ((K (F := F)).mayWaits_none (thr := thr d L) hO) $$ Hlv
  isplitr; · iexact Hmw
  isplitl [HO]; · iexact HO
  isplitl [HX]; · iexact HX
  isplitl [HOut]; · iexact HOut
  isplitl [H4]; · iexact H4
  isplitl [H5]; · iexact H5
  isplitl [H6]; · iexact H6
  isplitl [H7]; · iexact H7
  isplitl [Hs8]; · iexact Hs8
  isplitl [Hs9]; · iexact Hs9
  isplitl [Hs10]; · iexact Hs10
  isplitl [Hs11]; · iexact Hs11
  isplitl [Hbufs]; · iexact Hbufs
  iexact Hsems

theorem body_post :
    runPost d L O W fx (restR (F := F) d L)
      ⊢ iprop(tdRes d L fx ∗ ownBufs (thr d L) ∗ ownSems0 (thr d L) ∗ ∃ W', ⌜∀ p ∈ W', p ∈ W ∨ p.2 = none⌝ ∗ owes (thr d L) O W') := by
  rw [ownSems0_V, ownBufs_V]
  unfold tdRes runPost restR
  iintro ⟨HX, HOut, H4, H5, H6, H7, Hs8, Hs9, Hs10, Hs11, HW, Hbufs, Hsems⟩
  isplitl [HX HOut]
  · isplitl [HX]; · iexact HX
    iexact HOut
  isplitl [H4 H5 H6 H7 Hbufs]
  · isplitl [H4]; · iexact H4
    isplitl [H5]; · iexact H5
    isplitl [H6]; · iexact H6
    isplitl [H7]; · iexact H7
    iexact Hbufs
  isplitl [Hs8 Hs9 Hs10 Hs11 Hsems]
  · isplitl [Hs8]; · iexact Hs8
    isplitl [Hs9]; · iexact Hs9
    isplitl [Hs10]; · iexact Hs10
    isplitl [Hs11]; · iexact Hs11
    iexact Hsems
  iexact HW

/-- The task in the launch theorem's shape: from what the call hands the tile and the subcore's scoped storage to
    what the tile hands back and the storage again. -/
theorem tile_body (hF : (K (F := F)).Facts) (hO : ∀ g, O g none = 0) :
    iprop(levAts (K (F := F)).L (K (F := F)).lev ∗ emp ∗ goRes d L fx ∗ scopedBufs (thr d L) ∗ scopedSems0 (thr d L) ∗ owes (thr d L) O W)
      ⊢ wp frame (wpE (defs₀ (F := F)) 𝒱₀ (thr d L) none) Set.univ
          (cc15_sc_group L xtW (Memref.isWhole_whole _) oW (Memref.isWhole_whole _) a4 (Memref.isWhole_whole _) a5 (Memref.isWhole_whole _)
            a6 (Memref.isWhole_whole _) a7 (Memref.isWhole_whole _) cc15_scratch4 cc15_scratch5 cc15_scratch6 cc15_scratch7)
          fun _ => iprop(tdRes d L fx ∗ scopedBufs (thr d L) ∗ scopedSems0 (thr d L)
            ∗ ∃ W', ⌜∀ p ∈ W', p ∈ W ∨ p.2 = none⌝ ∗ owes (thr d L) O W') := by
  rw [(K (F := F)).scopedBufs_V hF d (cV L) (jV L), SparseCore.Cfg.scopedSems0_V (Val := Elt F) d (cV L) (jV L)]
  exact (body_pre d L O W fx hO).trans ((tile_run d L O W fx (restR (F := F) d L)).trans (wp_mono frame _ _ fun _ => body_post d L O W fx))

end Tile

end Cert.Proof.TileK15

end
-- ==== Proof.TileBVal15.lean ====
/-
  What the staging buffers of one vector subcore hold while it copies a piece of 3200 consecutive elements of row 15 of
  the transposed argument into the flat result, read index by index. No program and no ownership here: only the contents.

  A transfer lands the piece in row 0 of an 8 × 3200 staging array (`InRow`: position (0, t) of that row holds element
  (0, pos + t) of the transposed argument, `pos` the piece's first column). A loop of 200 trips copies that row, 16 lanes
  per trip, into the first 3200 elements of a flat staging array of 25600: trip `j` reads the 1 × 16 window at columns
  [16 j, 16 j + 16) of row 0 and writes it, flattened, at elements [16 j, 16 j + 16). After `j` trips the first 16 j
  elements of the flat array are the first 16 j elements of the row (`Lanes`); a trip extends the prefix by 16
  (`lanes_step`: an element below 16 j is outside the window written and keeps its value, an element of the window reads
  the lane written there, which is the row's element at the same column). A second transfer writes the first 3200
  elements of the flat array to the piece of the result at the same `pos`; so every element of that piece of the result
  holds the element of row 15 of the transposed argument at its own position (`out_written`): the composite of the three
  index maps t ↦ (0, pos + t) ↦ (0, t) ↦ t ↦ pos + t is the identity on positions of the row.
-/
import proofs.«206869_g37898791420194_cont_8to1_b_558_20_alg».proof.Proof.TileB15Defs
import proofs.«206869_g37898791420194_cont_8to1_b_558_20_alg».proof.Proof.Spec
import Idealize.ShloMosaic.Lib.WritesUnit
import Idealize.ShloMosaic.Lib.ValueLayout

noncomputable section

namespace Cert.Proof.TileBVal15

open Cert.Proof.TileB15 Cert.Kernel Cert.Kernel.Gen
open Idealize.ShloMosaic Idealize.ShloMosaic.ValueIdx

variable {F : FTy → Type} [FloatOps F]
variable (d : Dev nD) (L : grid15.Coords)
variable (fx : Buf (Elt F) ((Memref.whole main_v0_scv : Memref sig .scVector .hbm S22x1600000 .f32).view.loc (thr d L)))

abbrev rowRect : Rect S8x3200 := Rect.unit (s := S8x3200) ![0, 0] S1x3200.size inb_S8x3200_S1x3200_0_0

/-- row 0 of the staging array is piece n of the argument row -/
def InRow (a : Memref sig .scVector .vmem S8x3200 .f32) (ga : Buf (Elt F) (a.view.loc (thr d L))) (n : ℕ) : Prop :=
  ∀ y : S1x3200.Idx, a.view.read (Elt F) ga (rowRect.emb y) = (inM L n).view.read (Elt F) fx y

theorem inRow_fetch (a : Memref sig .scVector .vmem S8x3200 .f32) (gold : Buf (Elt F) (a.view.loc (thr d L)))
    (w : S1x3200.Idx → Elt F .f32) (n : ℕ) (hw : ∀ y, w y = (inM L n).view.read (Elt F) fx y) :
    InRow d L fx a (a.view.writes (Elt F) gold [⟨rowRect, w⟩]) n :=
  fun y => (View.read_writes_cons_emb a.view gold rowRect w [] y).trans (hw y)

def Lanes (a : Memref sig .scVector .vmem S8x3200 .f32) (b : Memref sig .scVector .vmem S25600 .f32)
    (ga : Buf (Elt F) (a.view.loc (thr d L))) (gb : Buf (Elt F) (b.view.loc (thr d L))) (j : ℕ) : Prop :=
  ∀ (r : ℕ) (hr : r < 3200), r < 16 * j →
    b.view.read (Elt F) gb (ix1 (⟨r, by omega⟩ : Fin 25600)) = a.view.read (Elt F) ga (ix2 (0 : Fin 8) (⟨r, hr⟩ : Fin 3200))

theorem lanes_zero (a : Memref sig .scVector .vmem S8x3200 .f32) (b : Memref sig .scVector .vmem S25600 .f32)
    (ga : Buf (Elt F) (a.view.loc (thr d L))) (gb : Buf (Elt F) (b.view.loc (thr d L))) : Lanes d L a b ga gb 0 := by
  intro r hr h; omega

/-- The 1 × 16 window at column `c` of the staging array, read at lane `t`, is element `(0, c + t)`. -/
theorem idx_window {off : Fin 2 → ℕ} {c : ℕ} (h : off = ![0, c]) (p : ∀ a', off a' + S1x16.size a' ≤ S8x3200.size a')
    (t : Fin 16) (hr : c + t.val < 3200) :
    (Rect.unit (s := S8x3200) off S1x16.size p).toLoadRect.idx (ix2 (0 : Fin 1) t) = ix2 (0 : Fin 8) (⟨c + t.val, hr⟩ : Fin 3200) := by
  subst h
  funext a'; apply Fin.ext
  rw [LoadRect.idx_apply]
  match a' with
  | ⟨0, _⟩ => show 0 + 1 * 0 = 0; omega
  | ⟨1, _⟩ => show c + 1 * t.val = c + t.val; omega

/-- One trip of a lane-copy loop, the offsets given by their closed forms. -/
theorem lanes_step_core (a : Memref sig .scVector .vmem S8x3200 .f32) (b : Memref sig .scVector .vmem S25600 .f32)
    (ga : Buf (Elt F) (a.view.loc (thr d L))) (gb : Buf (Elt F) (b.view.loc (thr d L)))
    (t : ℕ) {off3 : Fin 2 → ℕ} {off4 : Fin 1 → ℕ} (h3 : off3 = ![0, 16 * t]) (h4 : off4 = ![16 * t])
    (p3 : ∀ a', off3 a' + S1x16.size a' ≤ S8x3200.size a') (p4 : ∀ a', off4 a' + S16.size a' ≤ S25600.size a')
    (h : Lanes d L a b ga gb t) :
    Lanes d L a b ga (b.view.writes (Elt F) gb [⟨Rect.unit (s := S25600) off4 S16.size p4,
      shapeCast S16 (a.view.readAt (Elt F) (Rect.unit (s := S8x3200) off3 S1x16.size p3).toLoadRect ga) shapeCasts_S1x16_S16⟩]) (t + 1) := by
  intro r hr hlt
  by_cases hlo : r < 16 * t
  · refine (View.read_writes_cons_unit_of_not_mem b.view gb p4 _ [] _ h4 (0 : Fin 1) (Or.inl ?_)).trans (h r hr hlo)
    show r < 16 * t
    exact hlo
  · have hx : r - 16 * t < 16 := by omega
    refine (View.read_writes_cons_unit_of_mem b.view gb p4 _ [] _ (ix1 (⟨r - 16 * t, hx⟩ : Fin 16)) h4 ?_).trans ?_
    · intro a'
      match a' with
      | ⟨0, _⟩ => show r = 16 * t + (r - 16 * t); omega
    · rw [shapeCast_1a_a_apply, View.readAt_apply, idx_window h3 p3 ⟨r - 16 * t, hx⟩ (by show 16 * t + (r - 16 * t) < 3200; omega)]
      congr 2
      apply Fin.ext
      show 16 * t + (r - 16 * t) = r
      omega

theorem lanes_step (a : Memref sig .scVector .vmem S8x3200 .f32) (b : Memref sig .scVector .vmem S25600 .f32)
    (ga : Buf (Elt F) (a.view.loc (thr d L))) (gb : Buf (Elt F) (b.view.loc (thr d L)))
    (j : Fin k15_t2_loop.trips) (p3 : ∀ a', (k15_off3 j) a' + S1x16.size a' ≤ S8x3200.size a')
    (p4 : ∀ a', (k15_off4 j) a' + S16.size a' ≤ S25600.size a') (h : Lanes d L a b ga gb j.val) :
    Lanes d L a b ga (b.view.writes (Elt F) gb [⟨Rect.unit (s := S25600) (k15_off4 j) S16.size p4,
      k15_pay1 (a.view.readAt (Elt F) (Rect.unit (s := S8x3200) (k15_off3 j) S1x16.size p3).toLoadRect ga)⟩]) (j.val + 1) :=
  lanes_step_core d L a b ga gb j.val (k15_off3_eq j) (k15_off4_eq j) p3 p4 h

theorem lanes_step' (a : Memref sig .scVector .vmem S8x3200 .f32) (b : Memref sig .scVector .vmem S25600 .f32)
    (ga : Buf (Elt F) (a.view.loc (thr d L))) (gb : Buf (Elt F) (b.view.loc (thr d L)))
    (j : Fin k15_t3_loop.trips) (p3 : ∀ a', (k15_off8 j) a' + S1x16.size a' ≤ S8x3200.size a')
    (p4 : ∀ a', (k15_off9 j) a' + S16.size a' ≤ S25600.size a') (h : Lanes d L a b ga gb j.val) :
    Lanes d L a b ga (b.view.writes (Elt F) gb [⟨Rect.unit (s := S25600) (k15_off9 j) S16.size p4,
      k15_pay2 (a.view.readAt (Elt F) (Rect.unit (s := S8x3200) (k15_off8 j) S1x16.size p3).toLoadRect ga)⟩]) (j.val + 1) :=
  lanes_step_core d L a b ga gb j.val (k15_off8_eq j) (k15_off9_eq j) p3 p4 h

/-- Position `y` of the write-out window of the flat staging array is its element `y 0`. -/
theorem stg_emb (y : S3200.Idx) (hy : (y 0).val < 25600) :
    (Rect.unit (s := S25600) ![0] S3200.size inb_S25600_S3200_0).emb y = ix1 (⟨(y 0).val, hy⟩ : Fin 25600) := by
  funext a'; apply Fin.ext
  match a' with
  | ⟨0, _⟩ => show 0 + 1 * (y 0).val = (y 0).val; omega

/-- Position `(0, t)` of row 0 of the staging array is its element `(0, t)`. -/
theorem row_emb (t : Fin 3200) : rowRect.emb (ix2 (0 : Fin 1) t) = ix2 (0 : Fin 8) t := by
  funext a'; apply Fin.ext
  match a' with
  | ⟨0, _⟩ => show 0 + 1 * 0 = 0; omega
  | ⟨1, _⟩ => show 0 + 1 * t.val = t.val; omega

/-- Position `(0, t)` of piece `n` of the argument row is element `(0, pos + t)` of the transposed argument;
    position `y` of piece `n` of the result is element `pos + y 0` of the result. -/
theorem in_emb (n : ℕ) (t : Fin 3200) (h : pos L n + t.val < 1600000) :
    (inM L n).view.emb (ix2 (0 : Fin 1) t) = ix2 (15 : Fin 22) (⟨pos L n + t.val, h⟩ : Fin 1600000) := by
  funext a'; apply Fin.ext
  match a' with
  | ⟨0, _⟩ => show 15 + 1 * 0 = 15; omega
  | ⟨1, _⟩ => show pos L n + 1 * t.val = pos L n + t.val; omega

theorem out_emb (n : ℕ) (y : S3200.Idx) (h : pos L n + (y 0).val < 1600000) :
    (outM L n).view.emb y = ix1 (⟨pos L n + (y 0).val, h⟩ : Fin 1600000) := by
  funext a'; apply Fin.ext
  match a' with
  | ⟨0, _⟩ => show pos L n + 1 * (y 0).val = pos L n + (y 0).val; omega

/-- Both lane-copy loops run 200 trips: 200 · 16 = 3200, the whole row. -/
theorem trips2 : k15_t2_loop.trips = 200 := by decide
theorem trips3 : k15_t3_loop.trips = 200 := by decide

/-- After all its trips a lane-copy loop has copied the whole row. -/
theorem lanes_all (a : Memref sig .scVector .vmem S8x3200 .f32) (b : Memref sig .scVector .vmem S25600 .f32)
    (ga : Buf (Elt F) (a.view.loc (thr d L))) (gb : Buf (Elt F) (b.view.loc (thr d L)))
    (h : Lanes d L a b ga gb k15_t2_loop.trips) : Lanes d L a b ga gb 200 := trips2 ▸ h
theorem lanes_all' (a : Memref sig .scVector .vmem S8x3200 .f32) (b : Memref sig .scVector .vmem S25600 .f32)
    (ga : Buf (Elt F) (a.view.loc (thr d L))) (gb : Buf (Elt F) (b.view.loc (thr d L)))
    (h : Lanes d L a b ga gb k15_t3_loop.trips) : Lanes d L a b ga gb 200 := trips3 ▸ h

/-- The write-out of a piece: the first 3200 elements of the flat staging array, which the 200 lane copies filled from
    row 0 of the staging array, which the fetch filled from piece `n` of row 15 of the transposed argument, land at
    piece `n` of the result, at the same positions of the row. -/
theorem out_written (a : Memref sig .scVector .vmem S8x3200 .f32) (b : Memref sig .scVector .vmem S25600 .f32) (n : ℕ)
    (ga : Buf (Elt F) (a.view.loc (thr d L))) (gb : Buf (Elt F) (b.view.loc (thr d L)))
    (f0 : Buf (Elt F) ((outM L n).view.loc (thr d L))) (w : S3200.Idx → Elt F .f32)
    (hw : ∀ y, w y = (stg b).view.read (Elt F) gb y) (hl : Lanes d L a b ga gb 200) (hr : InRow d L fx a ga n) (hv : valid L n) :
    ∀ i ∈ (outM L n).view.set, ((outM L n).view.writes (Elt F) f0 [⟨Rect.whole _, w⟩]) i = Cert.Spec.row 15 fx i := by
  intro i hi
  obtain ⟨y, -, rfl⟩ := Finset.mem_map.mp hi
  have hy : (y 0).val < 3200 := (y 0).isLt
  have hp : pos L n + (y 0).val < 1600000 := by unfold pos; omega
  have e1 : (outM L n).view.writes (Elt F) f0 [⟨Rect.whole _, w⟩] ((outM L n).view.emb y) = w y := by
    have h := View.read_writes_cons_emb (outM L n).view f0 (Rect.whole _) w [] y
    rw [Rect.emb_whole_apply] at h
    exact (cast_eq _ _).symm.trans ((View.read_apply _ _).symm.trans h)
  have e2 : (stg b).view.read (Elt F) gb y = b.view.read (Elt F) gb (ix1 (⟨(y 0).val, by omega⟩ : Fin 25600)) :=
    congrArg (b.view.read (Elt F) gb) (stg_emb y (by omega))
  have e3 : a.view.read (Elt F) ga (ix2 (0 : Fin 8) (⟨(y 0).val, hy⟩ : Fin 3200))
      = (inM L n).view.read (Elt F) fx (ix2 (0 : Fin 1) (⟨(y 0).val, hy⟩ : Fin 3200)) :=
    (congrArg (a.view.read (Elt F) ga) (row_emb ⟨(y 0).val, hy⟩).symm).trans (hr _)
  have e4 : (inM L n).view.read (Elt F) fx (ix2 (0 : Fin 1) (⟨(y 0).val, hy⟩ : Fin 3200))
      = fx (ix2 (15 : Fin 22) (⟨pos L n + (y 0).val, hp⟩ : Fin 1600000)) :=
    ((View.read_apply _ _).trans (cast_eq _ _)).trans (congrArg fx (in_emb L n ⟨(y 0).val, hy⟩ hp))
  have e5 : Cert.Spec.row 15 fx ((outM L n).view.emb y) = fx (ix2 (15 : Fin 22) (⟨pos L n + (y 0).val, hp⟩ : Fin 1600000)) :=
    (congrArg (Cert.Spec.row 15 fx) (out_emb L n y hp)).trans (Cert.Spec.row_apply 15 fx _)
  exact e1.trans ((hw y).trans (e2.trans ((hl _ hy (by omega)).trans (e3.trans (e4.trans e5.symm)))))

end Cert.Proof.TileBVal15

end
-- ==== Proof.TileB15.lean ====
/-
  One vector subcore's task of copy kernel 15 (counting from 0), run symbolically: the two fetch slots and two write-out slots
  between trips of the main loop (what each transfer in flight will hand back, and what the staging buffers hold), the
  invariant of the main loop and of the two lane-copy loops, and the task's run — from the tile's pieces of row 15 of
  the transposed argument and of the result to the same pieces with the result holding the row's elements.
-/
import proofs.«206869_g37898791420194_cont_8to1_b_558_20_alg».proof.Proof.TileB15Defs
import proofs.«206869_g37898791420194_cont_8to1_b_558_20_alg».proof.Proof.TileBVal15
noncomputable section

namespace Cert.Proof.TileB15

open Cert.Kernel Cert.Kernel.Gen Cert.Proof.TileBVal15
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 22) (Elt F) ℕ UU ℕ
local notation "xtW" => (Memref.whole Cert.Kernel.main_v0_scv : Memref Cert.Kernel.sig Kind.scVector Space.hbm Cert.Kernel.S22x1600000 EltTy.f32)
local notation "oW" => (Memref.whole Cert.Kernel.main_v16_scv : Memref Cert.Kernel.sig Kind.scVector Space.hbm Cert.Kernel.S1600000 EltTy.f32)
local notation "a4" => (Memref.whole Cert.Kernel.cc15_scratch0 : Memref Cert.Kernel.sig Kind.scVector Space.vmem Cert.Kernel.S8x3200 EltTy.f32)
local notation "a5" => (Memref.whole Cert.Kernel.cc15_scratch1 : Memref Cert.Kernel.sig Kind.scVector Space.vmem Cert.Kernel.S8x3200 EltTy.f32)
local notation "a6" => (Memref.whole Cert.Kernel.cc15_scratch2 : Memref Cert.Kernel.sig Kind.scVector Space.vmem Cert.Kernel.S25600 EltTy.f32)
local notation "a7" => (Memref.whole Cert.Kernel.cc15_scratch3 : Memref Cert.Kernel.sig Kind.scVector Space.vmem Cert.Kernel.S25600 EltTy.f32)

variable [FloatOps F]

section Tile

variable (d : Dev nD) (L : grid15.Coords)
variable (O : CellTallies nD τ sig (HIx 22)) (W : Waits sig (HIx 22))
variable (fx : Buf (Elt F) ((xtW).view.loc (thr d L)))

/-- Piece `n` of the result at its final contents. -/
abbrev oqPiece (n : ℕ) : sProp 𝕄 := (outM L n).view.loc (thr d L) ↦[(outM L n).view.set]{fullShare} (Cert.Spec.row 15 fx)
theorem oQ_pos {n : ℕ} (v : valid L n) : oQ d L fx n = oqPiece d L fx n := if_pos v
theorem oQ_neg {n : ℕ} (v : ¬ valid L n) : oQ d L fx n = iprop(emp) := if_neg v

/-- A fetch slot, remembering that the staging row it will hand back holds the piece. -/
def inSlotV (a : Memref sig .scVector .vmem S8x3200 .f32) (sm : DmaSem sig) (n : ℕ) : sProp 𝕄 :=
  if valid L n then
    iprop(∃ g, ⌜InRow d L fx a g n⌝ ∗ Transfers.Flight countersEmb (thr d L) (SemLoc.dma sm) (default : HIx 22) NN
      iprop((a.view.loc (thr d L) ↦{fullShare} g) ∗ xtPiece d L fx n))
  else iprop((∃ g, a.view.loc (thr d L) ↦{fullShare} g) ∗ semVal (thr d L, SemLoc.dma sm) 0)

/-- A write-out slot: the piece in flight will come back holding the row's elements. -/
def outSlotV (a : Memref sig .scVector .vmem S25600 .f32) (sm : DmaSem sig) (m : ℕ) : sProp 𝕄 :=
  if 2 ≤ m ∧ valid L (m - 2) then
    iprop(∃ g, Transfers.Flight countersEmb (thr d L) (SemLoc.dma sm) (default : HIx 22) NN
        iprop(oqPiece d L fx (m - 2) ∗ ((stg a).view.loc (thr d L) ↦[(stg a).view.set]{fullShare} g))
      ∗ (a.view.loc (thr d L) ↦[Finset.univ \ (stg a).view.set]{fullShare} g))
  else iprop((∃ g, a.view.loc (thr d L) ↦{fullShare} g) ∗ semVal (thr d L, SemLoc.dma sm) 0)

theorem inSlotV_pos {a : Memref sig .scVector .vmem S8x3200 .f32} {sm : DmaSem sig} {n : ℕ} (v : valid L n) :
    inSlotV d L fx a sm n = iprop(∃ g, ⌜InRow d L fx a g n⌝ ∗ Transfers.Flight countersEmb (thr d L) (SemLoc.dma sm) (default : HIx 22) NN
      iprop((a.view.loc (thr d L) ↦{fullShare} g) ∗ xtPiece d L fx n)) := by unfold inSlotV; rw [if_pos v]
theorem inSlotV_neg {a : Memref sig .scVector .vmem S8x3200 .f32} {sm : DmaSem sig} {n : ℕ} (v : ¬ valid L n) :
    inSlotV d L fx a sm n = iprop((∃ g, a.view.loc (thr d L) ↦{fullShare} g) ∗ semVal (thr d L, SemLoc.dma sm) 0) := by
  unfold inSlotV; rw [if_neg v]
theorem outSlotV_pos {a : Memref sig .scVector .vmem S25600 .f32} {sm : DmaSem sig} {m : ℕ} (h : 2 ≤ m ∧ valid L (m - 2)) :
    outSlotV d L fx a sm m = iprop(∃ g, Transfers.Flight countersEmb (thr d L) (SemLoc.dma sm) (default : HIx 22) NN
        iprop(oqPiece d L fx (m - 2) ∗ ((stg a).view.loc (thr d L) ↦[(stg a).view.set]{fullShare} g))
      ∗ (a.view.loc (thr d L) ↦[Finset.univ \ (stg a).view.set]{fullShare} g)) := by unfold outSlotV; rw [if_pos h]
theorem outSlotV_neg {a : Memref sig .scVector .vmem S25600 .f32} {sm : DmaSem sig} {m : ℕ} (h : ¬ (2 ≤ m ∧ valid L (m - 2))) :
    outSlotV d L fx a sm m = iprop((∃ g, a.view.loc (thr d L) ↦{fullShare} g) ∗ semVal (thr d L, SemLoc.dma sm) 0) := by
  unfold outSlotV; rw [if_neg h]

/-- A fetch just issued: the staging row will hold what the transfer reads, which is the piece. -/
theorem fl_inV {off : Fin 2 → ℕ} {n : ℕ} (h : off = ![15, pos L n]) (p : ∀ a, off a + S1x3200.size a ≤ S22x1600000.size a) (v : valid L n)
    (a : Memref sig .scVector .vmem S8x3200 .f32) (sm : DmaSem sig) :
    (iprop(∃ (gold : Buf (Elt F) (a.view.loc (thr d L))) (w : S1x3200.Idx → Elt F .f32),
        ⌜∀ y, w y = ((xtW).slice (Rect.unit (s := S22x1600000) off S1x3200.size p) (fun _ => rfl)).view.read (Elt F) fx y⌝
        ∗ Transfers.Flight countersEmb (thr d L) (SemLoc.dma sm) (default : HIx 22) NN
          iprop((a.view.loc (thr d L) ↦{fullShare} a.view.writes (Elt F) gold [⟨rowRect, w⟩])
            ∗ (((xtW).slice (Rect.unit (s := S22x1600000) off S1x3200.size p) (fun _ => rfl)).view.loc (thr d L)
                ↦[((xtW).slice (Rect.unit (s := S22x1600000) off S1x3200.size p) (fun _ => rfl)).view.set]{fullShare} fx))) : sProp 𝕄)
      ⊢ inSlotV d L fx a sm n := by
  subst h
  rw [inSlotV_pos d L fx v]
  iintro ⟨%gold, %w, %hw, H⟩
  iexists _
  isplitr
  · ipureintro; exact inRow_fetch d L fx a gold w n hw
  · iexact H

set_option maxHeartbeats 4000000 in
/-- A write-out just issued from a flat staging buffer whose first 3200 elements are the staging row, itself piece
    `n` of the argument row: the piece of the result will hold the row's elements. -/
theorem fl_outV {off : Fin 1 → ℕ} {n : ℕ} (h : off = ![pos L n]) (p : ∀ a, off a + S3200.size a ≤ S1600000.size a) (v : valid L n)
    (ar : Memref sig .scVector .vmem S8x3200 .f32) (a : Memref sig .scVector .vmem S25600 .f32) (sm : DmaSem sig)
    (f0 : Buf (Elt F) ((oW).view.loc (thr d L))) (ga : Buf (Elt F) (ar.view.loc (thr d L))) (gb : Buf (Elt F) (a.view.loc (thr d L)))
    (hl : Lanes d L ar a ga gb 200) (hr : InRow d L fx ar ga n) :
    (iprop(∃ (w : S3200.Idx → Elt F .f32),
        ⌜∀ y, w y = (stg a).view.read (Elt F) gb y⌝
        ∗ Transfers.Flight countersEmb (thr d L) (SemLoc.dma sm) (default : HIx 22) NN
          iprop((((oW).slice (Rect.unit (s := S1600000) off S3200.size p) (fun _ => rfl)).view.loc (thr d L)
                ↦[((oW).slice (Rect.unit (s := S1600000) off S3200.size p) (fun _ => rfl)).view.set]{fullShare}
                  (((oW).slice (Rect.unit (s := S1600000) off S3200.size p) (fun _ => rfl)).view.writes (Elt F) f0 [⟨Rect.whole _, w⟩]))
            ∗ ((stg a).view.loc (thr d L) ↦[(stg a).view.set]{fullShare} gb))
        ∗ (a.view.loc (thr d L) ↦[Finset.univ \ (stg a).view.set]{fullShare} gb)) : sProp 𝕄)
      ⊢ outSlotV d L fx a sm (n + 2) := by
  subst h
  rw [outSlotV_pos d L fx (m := n + 2) ⟨by omega, by simpa using v⟩]
  iintro ⟨%w, %hw, H, R⟩
  have hD : (iprop(((outM L n).view.loc (thr d L) ↦[(outM L n).view.set]{fullShare} ((outM L n).view.writes (Elt F) f0 [⟨Rect.whole _, w⟩]))
          ∗ ((stg a).view.loc (thr d L) ↦[(stg a).view.set]{fullShare} gb)) : sProp 𝕄)
      ⊢ iprop(oqPiece d L fx (n + 2 - 2) ∗ ((stg a).view.loc (thr d L) ↦[(stg a).view.set]{fullShare} gb)) := by
    rw [Nat.add_sub_cancel]
    have e : (((outM L n).view.loc (thr d L) ↦[(outM L n).view.set]{fullShare} ((outM L n).view.writes (Elt F) f0 [⟨Rect.whole _, w⟩])) : sProp 𝕄)
        = oqPiece d L fx n := pointsTo_congr (out_written d L fx ar a n ga gb f0 w hw hl hr v)
    iintro ⟨H1, H2⟩
    isplitl [H1]
    · iapply (Entails.of_eq e); iexact H1
    · iexact H2
  iexists gb
  isplitl [H]
  · iapply (Transfers.Flight_mono countersEmb (thr d L) hD); iexact H
  · iexact R

/-- The result pieces outside the slots before trip `t`: those already written hold the row, the others some contents. -/
def oMix (t n : ℕ) : sProp 𝕄 := if n + 2 < 2 * t then oQ d L fx n else oP (F := F) d L n
theorem oMix_lt {t n : ℕ} (h : n + 2 < 2 * t) : oMix d L fx t n = oQ d L fx n := if_pos h
theorem oMix_ge {t n : ℕ} (h : ¬ n + 2 < 2 * t) : oMix d L fx t n = oP (F := F) d L n := if_neg h
theorem oMix_core (k : ℕ) : bigSep (oCore k) (oMix d L fx k) = bigSep (oCore k) (oMix d L fx (k + 1)) :=
  bigSep_congr fun n hn => by
    have hn' : n + 2 ≠ 2 * k ∧ n + 2 ≠ 2 * k + 1 ∧ n ≠ 2 * k ∧ n ≠ 2 * k + 1 := by
      simp only [oCore, Finset.mem_filter, Finset.mem_range] at hn; exact hn.2
    by_cases h : n + 2 < 2 * k
    · rw [oMix_lt d L fx h, oMix_lt d L fx (by omega)]
    · rw [oMix_ge d L fx h, oMix_ge d L fx (by omega)]
theorem oMix_zero : bigSep (oSet 0) (oMix d L fx 0) = bigSep (Finset.range 18) (oP (F := F) d L) := by
  rw [oSet_zero]; exact bigSep_congr fun n _ => oMix_ge d L fx (by omega)
theorem oMix_end : bigSep (oSet 8) (oMix d L fx 8) = bigSep (oSet 8) (oQ d L fx) :=
  bigSep_congr fun n hn => by
    have hn' : n < 18 ∧ n + 2 ≠ 16 ∧ n + 2 ≠ 17 := by simpa only [oSet, Finset.mem_filter, Finset.mem_range] using hn
    by_cases h : n + 2 < 2 * 8
    · exact oMix_lt d L fx h
    · rw [oMix_ge d L fx h, oP_neg (F := F) d L (by unfold valid; omega), oQ_neg d L fx (by unfold valid; omega)]

/-- The lane-copy loops: before trip `j` the first 16·j elements of the flat staging buffer are the staging row's. -/
def laneV0 (g4 : Buf (Elt F) ((a4).view.loc (thr d L))) (j : ℕ) (_ : PUnit) : sProp 𝕄 :=
  iprop(((a4).view.loc (thr d L) ↦{fullShare} g4) ∗ (∃ g, ((a6).view.loc (thr d L) ↦{fullShare} g) ∗ ⌜Lanes d L a4 a6 g4 g j⌝))
def laneV1 (g5 : Buf (Elt F) ((a5).view.loc (thr d L))) (j : ℕ) (_ : PUnit) : sProp 𝕄 :=
  iprop(((a5).view.loc (thr d L) ↦{fullShare} g5) ∗ (∃ g, ((a7).view.loc (thr d L) ↦{fullShare} g) ∗ ⌜Lanes d L a5 a7 g5 g j⌝))

def invV (t : ℕ) (_ : PUnit) : sProp 𝕄 :=
  iprop(Transfers.MayWaits (thr d L) (none : HIx 22) O
    ∗ (∃ W', ⌜∀ p ∈ W', p ∈ W ∨ p.2 = none⌝ ∗ owes (thr d L) O W')
    ∗ bigSep (xSet t) (xP d L fx) ∗ bigSep (oSet t) (oMix d L fx t)
    ∗ inSlotV d L fx a4 cc15_scratch4.sem (2 * t) ∗ outSlotV d L fx a6 cc15_scratch6.sem (2 * t)
    ∗ inSlotV d L fx a5 cc15_scratch5.sem (2 * t + 1) ∗ outSlotV d L fx a7 cc15_scratch7.sem (2 * t + 1))

/-- After the last trip nothing of the argument row is in a slot: the tile holds all its pieces. -/
theorem xRange_end : bigSep (xSet 8) (xP d L fx) ⊢ bigSep (Finset.range 18) (xP d L fx) := by
  rw [two_out (s := Finset.range 18) (a := 16) (b := 17) (by decide) (by decide) (by decide),
    show ((Finset.range 18).erase 16).erase 17 = xSet 8 by decide]
  iintro H
  isplitr; · iapply (Entails.of_eq (xP_neg d L fx (n := 16) (by unfold valid; omega)).symm); iempintro
  isplitr; · iapply (Entails.of_eq (xP_neg d L fx (n := 17) (by unfold valid; omega)).symm); iempintro
  iexact H
omit [FloatOps F] in
theorem oRange_end (Φ : ℕ → sProp 𝕄) : bigSep (Finset.range 18) Φ = iprop(Φ 14 ∗ Φ 15 ∗ bigSep (oSet 8) Φ) := by
  rw [two_out (s := Finset.range 18) (a := 14) (b := 15) (by decide) (by decide) (by decide),
    show ((Finset.range 18).erase 14).erase 15 = oSet 8 by decide]

/-- What the run starts from and ends with, beside an untouched rest `R`. -/
def runPre (R : sProp 𝕄) : sProp 𝕄 :=
    iprop(Transfers.MayWaits (thr d L) (none : HIx 22) O ∗ owes (thr d L) O W
        ∗ bigSep (Finset.range 18) (xP d L fx) ∗ bigSep (Finset.range 18) (oP (F := F) d L)
        ∗ (∃ g, (a4).view.loc (thr d L) ↦{fullShare} g) ∗ (∃ g, (a5).view.loc (thr d L) ↦{fullShare} g)
        ∗ (∃ g, (a6).view.loc (thr d L) ↦{fullShare} g) ∗ (∃ g, (a7).view.loc (thr d L) ↦{fullShare} g)
        ∗ semVal (thr d L, SemLoc.dma cc15_scratch4.sem) 0 ∗ semVal (thr d L, SemLoc.dma cc15_scratch5.sem) 0
        ∗ semVal (thr d L, SemLoc.dma cc15_scratch6.sem) 0 ∗ semVal (thr d L, SemLoc.dma cc15_scratch7.sem) 0 ∗ R)
def runPost (R : sProp 𝕄) : sProp 𝕄 :=
    iprop(bigSep (Finset.range 18) (xP d L fx) ∗ bigSep (Finset.range 18) (oQ d L fx)
            ∗ (∃ g, (a4).view.loc (thr d L) ↦{fullShare} g) ∗ (∃ g, (a5).view.loc (thr d L) ↦{fullShare} g)
            ∗ (∃ g, (a6).view.loc (thr d L) ↦{fullShare} g) ∗ (∃ g, (a7).view.loc (thr d L) ↦{fullShare} g)
            ∗ semVal (thr d L, SemLoc.dma cc15_scratch4.sem) 0 ∗ semVal (thr d L, SemLoc.dma cc15_scratch5.sem) 0
            ∗ semVal (thr d L, SemLoc.dma cc15_scratch6.sem) 0 ∗ semVal (thr d L, SemLoc.dma cc15_scratch7.sem) 0
            ∗ (∃ W', ⌜∀ p ∈ W', p ∈ W ∨ p.2 = none⌝ ∗ owes (thr d L) O W') ∗ R)

set_option maxHeartbeats 16000000 in
/-- The task's run: from its pieces of the argument row and of the result, the four staging buffers and the four
    semaphores at zero, to the same with every piece of the result holding the row's elements. -/
theorem tile_run (R : sProp 𝕄) :
    runPre d L O W fx R
      ⊢ wp frame (wpE (defs₀ (F := F)) 𝒱₀ (thr d L) none) Set.univ
          (cc15_sc_group L xtW (Memref.isWhole_whole _) oW (Memref.isWhole_whole _) a4 (Memref.isWhole_whole _) a5 (Memref.isWhole_whole _)
            a6 (Memref.isWhole_whole _) a7 (Memref.isWhole_whole _) cc15_scratch4 cc15_scratch5 cc15_scratch6 cc15_scratch7)
          fun _ => runPost d L O W fx R := by
  unfold runPre runPost
  have v0 : valid L 0 := Or.inl (by omega)
  have v1 : valid L 1 := Or.inl (by omega)
  have k15_h7 : k15_cond7 L = 1#1 := cond7_iff L
  iintro ⟨#Hmw, HO, HX, HOut, ⟨%g4, H4⟩, ⟨%g5, H5⟩, ⟨%g6, H6⟩, ⟨%g7, H7⟩, Hs8, Hs9, Hs10, Hs11, HR⟩
  ihave HX := (Entails.of_eq (xRange_split d L fx v0 v1)) $$ HX
  icases HX with ⟨X0, X1, HX⟩
  ihave X0 := (Entails.of_eq (in_congr d L (off_in0 L v0).symm (in_inb L _) (k15_off1_inb L 0) fx)) $$ X0
  ihave X1 := (Entails.of_eq (in_congr d L (off_in1 L v1).symm (in_inb L _) (k15_off1_inb L 1) fx)) $$ X1
  sl_unfold [cc15_sc_group]
  sl_exec
  ihave S8 := (fl_inV d L fx (off_in0 L v0) (k15_off1_inb L 0) v0 a4 cc15_scratch4.sem) $$ [Hs8]
  · iexists _, _
    isplitr
    rotate_left
    · iexact Hs8
    ipureintro; intro y; rfl
  ihave S9 := (fl_inV d L fx (off_in1 L v1) (k15_off1_inb L 1) v1 a5 cc15_scratch5.sem) $$ [Hs9]
  · iexists _, _
    isplitr
    rotate_left
    · iexact Hs9
    ipureintro; intro y; rfl
  sl_for (invV d L O W fx) $$ [HO HX HOut S8 S9 H6 H7 Hs10 Hs11]
  case region =>
    intro (k : Fin k15_t1_loop.trips) acc
    have hk : k.val < 8 := Nat.lt_of_lt_of_eq k.isLt trips1
    unfold invV
    iintro ⟨#Hmw, ⟨%W', %hW', HO⟩, HX, HOut, S8, S10, S9, S11⟩
    by_cases hk1 : 1 ≤ k.val
    · by_cases v3 : valid L (2 * k.val + 3)
      · -- the generic trip: both drains, both pieces worked, both next fetches issued
        have hk6 : k.val ≤ 6 := by unfold valid at v3; omega
        have k15_h1 : k15_cond1 k = 1#1 := (cond1_iff k).mpr (by omega)
        have k15_h2 : k15_cond2 L k = 1#1 := cond2_iff L k
        have k15_h3 : k15_cond3 L k = 1#1 := (cond3_iff L k).mpr (by omega)
        have k15_h4 : k15_cond4 k = 1#1 := (cond4_iff k).mpr (by omega)
        have k15_h5 : k15_cond5 L k = 1#1 := (cond5_iff L k).mpr (by first | (unfold valid big at *; omega) | (unfold big at *; omega) | omega)
        have k15_h6 : k15_cond6 L k = 1#1 := (cond6_iff L k).mpr (by first | (unfold valid big at *; omega) | (unfold big at *; omega) | omega)
        have v0 : valid L (2 * k.val) := by unfold valid big at *; omega
        have v1 : valid L (2 * k.val + 1) := by unfold valid big at *; omega
        have v2 : valid L (2 * k.val + 2) := by unfold valid big at *; omega
        have v3' : valid L (2 * k.val + 3) := by unfold valid big at *; omega
        have hm0 : 2 ≤ 2 * k.val ∧ valid L (2 * k.val - 2) := ⟨by omega, by unfold valid big at *; omega⟩
        have hm1 : 2 ≤ 2 * k.val + 1 ∧ valid L (2 * k.val + 1 - 2) := ⟨by omega, by unfold valid big at *; omega⟩
        ihave S8 := (Entails.of_eq (inSlotV_pos d L fx v0)) $$ S8
        icases S8 with ⟨%g4, %hin4, F8⟩
        ihave S9 := (Entails.of_eq (inSlotV_pos d L fx v1)) $$ S9
        icases S9 with ⟨%g5, %hin5, F9⟩
        ihave S10 := (Entails.of_eq (outSlotV_pos d L fx hm0)) $$ S10
        icases S10 with ⟨%g6, F10, R6⟩
        ihave S11 := (Entails.of_eq (outSlotV_pos d L fx hm1)) $$ S11
        icases S11 with ⟨%g7, F11, R7⟩
        ihave HX := (Entails.of_eq (xSet_out (xP d L fx) k.val hk)) $$ HX
        icases HX with ⟨X2, X3, HX⟩
        ihave X2 := (Entails.of_eq (xP_pos d L fx v2)) $$ X2
        ihave X2 := (Entails.of_eq (in_congr d L (off_6 L k v2).symm (in_inb L _) (k15_off6_inb L k k15_h3) fx)) $$ X2
        ihave X3 := (Entails.of_eq (xP_pos d L fx v3')) $$ X3
        ihave X3 := (Entails.of_eq (in_congr d L (off_11 L k v3').symm (in_inb L _) (k15_off11_inb L k k15_h6) fx)) $$ X3
        ihave HOut := (Entails.of_eq (oSet_out (oMix d L fx k.val) k.val hk)) $$ HOut
        icases HOut with ⟨Y0, Y1, HOut⟩
        ihave Y0 := (Entails.of_eq ((oMix_ge d L fx (t := k.val) (n := 2 * k.val) (by omega)).trans (oP_pos (F := F) d L v0))) $$ Y0
        icases Y0 with ⟨%f0, Y0⟩
        ihave Y0 := (Entails.of_eq (out_congr d L (off_5 L k v0).symm (out_inb L _) (k15_off5_inb L k k15_h2) f0)) $$ Y0
        ihave Y1 := (Entails.of_eq ((oMix_ge d L fx (t := k.val) (n := 2 * k.val + 1) (by omega)).trans (oP_pos (F := F) d L v1))) $$ Y1
        icases Y1 with ⟨%f1, Y1⟩
        ihave Y1 := (Entails.of_eq (out_congr d L (off_10 L k v1).symm (out_inb L _) (k15_off10_inb L k k15_h5) f1)) $$ Y1
        sl_exec
        sl_for (laneV0 d L g4) $$ [F8_dst R6]
        case region =>
          intro (j : Fin k15_t2_loop.trips) _
          unfold laneV0
          iintro ⟨HA, %g, HB, %hl⟩
          sl_exec
          sl_step
          isplitl [HA]; · iexact HA
          iexists _; isplitl [HB]; · iexact HB
          ipureintro; exact lanes_step d L a4 a6 g4 g j _ _ hl
        · unfold laneV0
          isplitl [F8_dst]; · iexact F8_dst
          iexists _; isplitl [R6]; · iexact R6
          ipureintro; exact lanes_zero d L a4 a6 g4 _
        iintro %_ HI
        unfold laneV0
        icases HI with ⟨H4, %g6', H6, %hl6⟩
        have hl6 : Lanes d L a4 a6 g4 g6' 200 := Eq.mp (congrArg (Lanes d L a4 a6 g4 g6') trips2) hl6
        sl_exec
        sl_for (laneV1 d L g5) $$ [F9_dst R7]
        case region =>
          intro (j : Fin k15_t3_loop.trips) _
          unfold laneV1
          iintro ⟨HA, %g, HB, %hl⟩
          sl_exec
          sl_step
          isplitl [HA]; · iexact HA
          iexists _; isplitl [HB]; · iexact HB
          ipureintro; exact lanes_step' d L a5 a7 g5 g j _ _ hl
        · unfold laneV1
          isplitl [F9_dst]; · iexact F9_dst
          iexists _; isplitl [R7]; · iexact R7
          ipureintro; exact lanes_zero d L a5 a7 g5 _
        iintro %_ HI
        unfold laneV1
        icases HI with ⟨H5, %g7', H7, %hl7⟩
        have hl7 : Lanes d L a5 a7 g5 g7' 200 := Eq.mp (congrArg (Lanes d L a5 a7 g5 g7') trips3) hl7
        sl_exec
        sl_step
        isplitr; · iexact Hmw
        isplitl [HO]
        · iexists _; isplitr
          rotate_left
          · iexact HO
          ipureintro; intro p hp
          rcases Finset.mem_insert.mp hp with rfl | hp
          · exact .inr rfl
          rcases Finset.mem_insert.mp hp with rfl | hp
          · exact .inr rfl
          rcases Finset.mem_insert.mp hp with rfl | hp
          · exact .inr rfl
          rcases Finset.mem_insert.mp hp with rfl | hp
          · exact .inr rfl
          exact hW' p hp
        isplitl [HX F8_src F9_src]
        · iapply (Entails.of_eq (xSet_in (xP d L fx) k.val hk).symm)
          isplitl [F8_src]; · iapply (Entails.of_eq (xP_pos d L fx v0).symm); iexact F8_src
          isplitl [F9_src]; · iapply (Entails.of_eq (xP_pos d L fx v1).symm); iexact F9_src
          iexact HX
        isplitl [HOut F10_dst F11_dst]
        · iapply (Entails.of_eq (oSet_in (oMix d L fx (k.val + 1)) k.val hk (by omega)).symm)
          isplitl [F10_dst]; · iapply (Entails.of_eq ((oMix_lt d L fx (t := k.val + 1) (n := 2 * k.val - 2) (by omega)).trans (oQ_pos d L fx hm0.2)).symm); iexact F10_dst
          isplitl [F11_dst]
          · iapply (Entails.of_eq ((oMix_lt d L fx (t := k.val + 1) (n := 2 * k.val - 1) (by omega)).trans (oQ_pos d L fx (n := 2 * k.val - 1) (by have := hm1.2; rwa [show 2 * k.val + 1 - 2 = 2 * k.val - 1 by omega] at this))).symm)
            iapply (Entails.of_eq (congrArg (oqPiece d L fx) (show 2 * k.val + 1 - 2 = 2 * k.val - 1 by omega))); iexact F11_dst
          iapply (Entails.of_eq (oMix_core d L fx k.val)); iexact HOut
        isplitl [F8]
        · iapply (Entails.of_eq (congrArg (inSlotV d L fx a4 cc15_scratch4.sem) (show 2 * k.val + 2 = 2 * (k.val + 1) by ring)))
          iapply (fl_inV d L fx (off_6 L k v2) (k15_off6_inb L k k15_h3) v2 a4 cc15_scratch4.sem); iexists _, _
          isplitr
          rotate_left
          · iexact F8
          ipureintro; intro y; rfl
        isplitl [F10 H6]
        · iapply (Entails.of_eq (congrArg (outSlotV d L fx a6 cc15_scratch6.sem) (show 2 * k.val + 2 = 2 * (k.val + 1) by ring)))
          iapply (fl_outV d L fx (off_5 L k v0) (k15_off5_inb L k k15_h2) v0 a4 a6 cc15_scratch6.sem f0 g4 g6' hl6 hin4); iexists _
          isplitr
          rotate_left
          · isplitl [F10]; · iexact F10
            iexact H6
          ipureintro; intro y; rfl
        isplitl [F9]
        · iapply (Entails.of_eq (congrArg (inSlotV d L fx a5 cc15_scratch5.sem) (show 2 * k.val + 3 = 2 * (k.val + 1) + 1 by ring)))
          iapply (fl_inV d L fx (off_11 L k v3') (k15_off11_inb L k k15_h6) v3' a5 cc15_scratch5.sem); iexists _, _
          isplitr
          rotate_left
          · iexact F9
          ipureintro; intro y; rfl
        · iapply (Entails.of_eq (congrArg (outSlotV d L fx a7 cc15_scratch7.sem) (show 2 * k.val + 1 + 2 = 2 * (k.val + 1) + 1 by ring)))
          iapply (fl_outV d L fx (off_10 L k v1) (k15_off10_inb L k k15_h5) v1 a5 a7 cc15_scratch7.sem f1 g5 g7' hl7 hin5); iexists _
          isplitr
          rotate_left
          · isplitl [F11]; · iexact F11
            iexact H7
          ipureintro; intro y; rfl
      · by_cases h6 : k.val = 6
        · have hb : ¬ big L := fun hb => v3 (Or.inr ⟨by omega, hb⟩)
          -- trip 6 of a tile with fifteen pieces: no sixteenth piece to fetch
          have k15_h1 : k15_cond1 k = 1#1 := (cond1_iff k).mpr (by omega)
          have k15_h2 : k15_cond2 L k = 1#1 := cond2_iff L k
          have k15_h3 : k15_cond3 L k = 1#1 := (cond3_iff L k).mpr (by omega)
          have k15_h4 : k15_cond4 k = 1#1 := (cond4_iff k).mpr (by omega)
          have k15_h5 : k15_cond5 L k = 1#1 := (cond5_iff L k).mpr (by first | (unfold valid big at *; omega) | (unfold big at *; omega) | omega)
          have k15_h6 : ¬ k15_cond6 L k = 1#1 := fun h => absurd ((cond6_iff L k).mp h) (by first | (unfold valid big at *; omega) | (unfold big at *; omega) | omega)
          have v0 : valid L (2 * k.val) := by unfold valid big at *; omega
          have v1 : valid L (2 * k.val + 1) := by unfold valid big at *; omega
          have v2 : valid L (2 * k.val + 2) := by unfold valid big at *; omega
          have v3' : ¬ valid L (2 * k.val + 3) := by unfold valid big at *; omega
          have hm0 : 2 ≤ 2 * k.val ∧ valid L (2 * k.val - 2) := ⟨by omega, by unfold valid big at *; omega⟩
          have hm1 : 2 ≤ 2 * k.val + 1 ∧ valid L (2 * k.val + 1 - 2) := ⟨by omega, by unfold valid big at *; omega⟩
          ihave S8 := (Entails.of_eq (inSlotV_pos d L fx v0)) $$ S8
          icases S8 with ⟨%g4, %hin4, F8⟩
          ihave S9 := (Entails.of_eq (inSlotV_pos d L fx v1)) $$ S9
          icases S9 with ⟨%g5, %hin5, F9⟩
          ihave S10 := (Entails.of_eq (outSlotV_pos d L fx hm0)) $$ S10
          icases S10 with ⟨%g6, F10, R6⟩
          ihave S11 := (Entails.of_eq (outSlotV_pos d L fx hm1)) $$ S11
          icases S11 with ⟨%g7, F11, R7⟩
          ihave HX := (Entails.of_eq (xSet_out (xP d L fx) k.val hk)) $$ HX
          icases HX with ⟨X2, -, HX⟩
          ihave X2 := (Entails.of_eq (xP_pos d L fx v2)) $$ X2
          ihave X2 := (Entails.of_eq (in_congr d L (off_6 L k v2).symm (in_inb L _) (k15_off6_inb L k k15_h3) fx)) $$ X2
          ihave HOut := (Entails.of_eq (oSet_out (oMix d L fx k.val) k.val hk)) $$ HOut
          icases HOut with ⟨Y0, Y1, HOut⟩
          ihave Y0 := (Entails.of_eq ((oMix_ge d L fx (t := k.val) (n := 2 * k.val) (by omega)).trans (oP_pos (F := F) d L v0))) $$ Y0
          icases Y0 with ⟨%f0, Y0⟩
          ihave Y0 := (Entails.of_eq (out_congr d L (off_5 L k v0).symm (out_inb L _) (k15_off5_inb L k k15_h2) f0)) $$ Y0
          ihave Y1 := (Entails.of_eq ((oMix_ge d L fx (t := k.val) (n := 2 * k.val + 1) (by omega)).trans (oP_pos (F := F) d L v1))) $$ Y1
          icases Y1 with ⟨%f1, Y1⟩
          ihave Y1 := (Entails.of_eq (out_congr d L (off_10 L k v1).symm (out_inb L _) (k15_off10_inb L k k15_h5) f1)) $$ Y1
          sl_exec
          sl_for (laneV0 d L g4) $$ [F8_dst R6]
          case region =>
            intro (j : Fin k15_t2_loop.trips) _
            unfold laneV0
            iintro ⟨HA, %g, HB, %hl⟩
            sl_exec
            sl_step
            isplitl [HA]; · iexact HA
            iexists _; isplitl [HB]; · iexact HB
            ipureintro; exact lanes_step d L a4 a6 g4 g j _ _ hl
          · unfold laneV0
            isplitl [F8_dst]; · iexact F8_dst
            iexists _; isplitl [R6]; · iexact R6
            ipureintro; exact lanes_zero d L a4 a6 g4 _
          iintro %_ HI
          unfold laneV0
          icases HI with ⟨H4, %g6', H6, %hl6⟩
          have hl6 : Lanes d L a4 a6 g4 g6' 200 := Eq.mp (congrArg (Lanes d L a4 a6 g4 g6') trips2) hl6
          sl_exec
          sl_for (laneV1 d L g5) $$ [F9_dst R7]
          case region =>
            intro (j : Fin k15_t3_loop.trips) _
            unfold laneV1
            iintro ⟨HA, %g, HB, %hl⟩
            sl_exec
            sl_step
            isplitl [HA]; · iexact HA
            iexists _; isplitl [HB]; · iexact HB
            ipureintro; exact lanes_step' d L a5 a7 g5 g j _ _ hl
          · unfold laneV1
            isplitl [F9_dst]; · iexact F9_dst
            iexists _; isplitl [R7]; · iexact R7
            ipureintro; exact lanes_zero d L a5 a7 g5 _
          iintro %_ HI
          unfold laneV1
          icases HI with ⟨H5, %g7', H7, %hl7⟩
          have hl7 : Lanes d L a5 a7 g5 g7' 200 := Eq.mp (congrArg (Lanes d L a5 a7 g5 g7') trips3) hl7
          sl_exec
          sl_step
          isplitr; · iexact Hmw
          isplitl [HO]
          · iexists _; isplitr
            rotate_left
            · iexact HO
            ipureintro; intro p hp
            rcases Finset.mem_insert.mp hp with rfl | hp
            · exact .inr rfl
            rcases Finset.mem_insert.mp hp with rfl | hp
            · exact .inr rfl
            rcases Finset.mem_insert.mp hp with rfl | hp
            · exact .inr rfl
            rcases Finset.mem_insert.mp hp with rfl | hp
            · exact .inr rfl
            exact hW' p hp
          isplitl [HX F8_src F9_src]
          · iapply (Entails.of_eq (xSet_in (xP d L fx) k.val hk).symm)
            isplitl [F8_src]; · iapply (Entails.of_eq (xP_pos d L fx v0).symm); iexact F8_src
            isplitl [F9_src]; · iapply (Entails.of_eq (xP_pos d L fx v1).symm); iexact F9_src
            iexact HX
          isplitl [HOut F10_dst F11_dst]
          · iapply (Entails.of_eq (oSet_in (oMix d L fx (k.val + 1)) k.val hk (by omega)).symm)
            isplitl [F10_dst]; · iapply (Entails.of_eq ((oMix_lt d L fx (t := k.val + 1) (n := 2 * k.val - 2) (by omega)).trans (oQ_pos d L fx hm0.2)).symm); iexact F10_dst
            isplitl [F11_dst]
            · iapply (Entails.of_eq ((oMix_lt d L fx (t := k.val + 1) (n := 2 * k.val - 1) (by omega)).trans (oQ_pos d L fx (n := 2 * k.val - 1) (by have := hm1.2; rwa [show 2 * k.val + 1 - 2 = 2 * k.val - 1 by omega] at this))).symm)
              iapply (Entails.of_eq (congrArg (oqPiece d L fx) (show 2 * k.val + 1 - 2 = 2 * k.val - 1 by omega))); iexact F11_dst
            iapply (Entails.of_eq (oMix_core d L fx k.val)); iexact HOut
          isplitl [F8]
          · iapply (Entails.of_eq (congrArg (inSlotV d L fx a4 cc15_scratch4.sem) (show 2 * k.val + 2 = 2 * (k.val + 1) by ring)))
            iapply (fl_inV d L fx (off_6 L k v2) (k15_off6_inb L k k15_h3) v2 a4 cc15_scratch4.sem); iexists _, _
            isplitr
            rotate_left
            · iexact F8
            ipureintro; intro y; rfl
          isplitl [F10 H6]
          · iapply (Entails.of_eq (congrArg (outSlotV d L fx a6 cc15_scratch6.sem) (show 2 * k.val + 2 = 2 * (k.val + 1) by ring)))
            iapply (fl_outV d L fx (off_5 L k v0) (k15_off5_inb L k k15_h2) v0 a4 a6 cc15_scratch6.sem f0 g4 g6' hl6 hin4); iexists _
            isplitr
            rotate_left
            · isplitl [F10]; · iexact F10
              iexact H6
            ipureintro; intro y; rfl
          isplitl [H5 F9]
          · iapply (Entails.of_eq (congrArg (inSlotV d L fx a5 cc15_scratch5.sem) (show 2 * k.val + 3 = 2 * (k.val + 1) + 1 by ring)))
            iapply (Entails.of_eq (inSlotV_neg d L fx v3').symm)
            isplitl [H5]; · iexists _; iexact H5
            iexact F9
          · iapply (Entails.of_eq (congrArg (outSlotV d L fx a7 cc15_scratch7.sem) (show 2 * k.val + 1 + 2 = 2 * (k.val + 1) + 1 by ring)))
            iapply (fl_outV d L fx (off_10 L k v1) (k15_off10_inb L k k15_h5) v1 a5 a7 cc15_scratch7.sem f1 g5 g7' hl7 hin5); iexists _
            isplitr
            rotate_left
            · isplitl [F11]; · iexact F11
              iexact H7
            ipureintro; intro y; rfl
        · have h7 : k.val = 7 := by unfold valid at v3; omega
          by_cases hb : big L
          · -- the last trip of a tile with sixteen pieces: nothing more to fetch
            have k15_h1 : k15_cond1 k = 1#1 := (cond1_iff k).mpr (by omega)
            have k15_h2 : k15_cond2 L k = 1#1 := cond2_iff L k
            have k15_h3 : ¬ k15_cond3 L k = 1#1 := fun h => absurd ((cond3_iff L k).mp h) (by omega)
            have k15_h4 : k15_cond4 k = 1#1 := (cond4_iff k).mpr (by omega)
            have k15_h5 : k15_cond5 L k = 1#1 := (cond5_iff L k).mpr (by first | (unfold valid big at *; omega) | (unfold big at *; omega) | omega)
            have k15_h6 : ¬ k15_cond6 L k = 1#1 := fun h => absurd ((cond6_iff L k).mp h) (by first | (unfold valid big at *; omega) | (unfold big at *; omega) | omega)
            have v0 : valid L (2 * k.val) := by unfold valid big at *; omega
            have v1 : valid L (2 * k.val + 1) := by unfold valid big at *; omega
            have v2 : ¬ valid L (2 * k.val + 2) := by unfold valid big at *; omega
            have v3' : ¬ valid L (2 * k.val + 3) := by unfold valid big at *; omega
            have hm0 : 2 ≤ 2 * k.val ∧ valid L (2 * k.val - 2) := ⟨by omega, by unfold valid big at *; omega⟩
            have hm1 : 2 ≤ 2 * k.val + 1 ∧ valid L (2 * k.val + 1 - 2) := ⟨by omega, by unfold valid big at *; omega⟩
            ihave S8 := (Entails.of_eq (inSlotV_pos d L fx v0)) $$ S8
            icases S8 with ⟨%g4, %hin4, F8⟩
            ihave S9 := (Entails.of_eq (inSlotV_pos d L fx v1)) $$ S9
            icases S9 with ⟨%g5, %hin5, F9⟩
            ihave S10 := (Entails.of_eq (outSlotV_pos d L fx hm0)) $$ S10
            icases S10 with ⟨%g6, F10, R6⟩
            ihave S11 := (Entails.of_eq (outSlotV_pos d L fx hm1)) $$ S11
            icases S11 with ⟨%g7, F11, R7⟩
            ihave HX := (Entails.of_eq (xSet_out (xP d L fx) k.val hk)) $$ HX
            icases HX with ⟨-, -, HX⟩
            ihave HOut := (Entails.of_eq (oSet_out (oMix d L fx k.val) k.val hk)) $$ HOut
            icases HOut with ⟨Y0, Y1, HOut⟩
            ihave Y0 := (Entails.of_eq ((oMix_ge d L fx (t := k.val) (n := 2 * k.val) (by omega)).trans (oP_pos (F := F) d L v0))) $$ Y0
            icases Y0 with ⟨%f0, Y0⟩
            ihave Y0 := (Entails.of_eq (out_congr d L (off_5 L k v0).symm (out_inb L _) (k15_off5_inb L k k15_h2) f0)) $$ Y0
            ihave Y1 := (Entails.of_eq ((oMix_ge d L fx (t := k.val) (n := 2 * k.val + 1) (by omega)).trans (oP_pos (F := F) d L v1))) $$ Y1
            icases Y1 with ⟨%f1, Y1⟩
            ihave Y1 := (Entails.of_eq (out_congr d L (off_10 L k v1).symm (out_inb L _) (k15_off10_inb L k k15_h5) f1)) $$ Y1
            sl_exec
            sl_for (laneV0 d L g4) $$ [F8_dst R6]
            case region =>
              intro (j : Fin k15_t2_loop.trips) _
              unfold laneV0
              iintro ⟨HA, %g, HB, %hl⟩
              sl_exec
              sl_step
              isplitl [HA]; · iexact HA
              iexists _; isplitl [HB]; · iexact HB
              ipureintro; exact lanes_step d L a4 a6 g4 g j _ _ hl
            · unfold laneV0
              isplitl [F8_dst]; · iexact F8_dst
              iexists _; isplitl [R6]; · iexact R6
              ipureintro; exact lanes_zero d L a4 a6 g4 _
            iintro %_ HI
            unfold laneV0
            icases HI with ⟨H4, %g6', H6, %hl6⟩
            have hl6 : Lanes d L a4 a6 g4 g6' 200 := Eq.mp (congrArg (Lanes d L a4 a6 g4 g6') trips2) hl6
            sl_exec
            sl_for (laneV1 d L g5) $$ [F9_dst R7]
            case region =>
              intro (j : Fin k15_t3_loop.trips) _
              unfold laneV1
              iintro ⟨HA, %g, HB, %hl⟩
              sl_exec
              sl_step
              isplitl [HA]; · iexact HA
              iexists _; isplitl [HB]; · iexact HB
              ipureintro; exact lanes_step' d L a5 a7 g5 g j _ _ hl
            · unfold laneV1
              isplitl [F9_dst]; · iexact F9_dst
              iexists _; isplitl [R7]; · iexact R7
              ipureintro; exact lanes_zero d L a5 a7 g5 _
            iintro %_ HI
            unfold laneV1
            icases HI with ⟨H5, %g7', H7, %hl7⟩
            have hl7 : Lanes d L a5 a7 g5 g7' 200 := Eq.mp (congrArg (Lanes d L a5 a7 g5 g7') trips3) hl7
            sl_exec
            sl_step
            isplitr; · iexact Hmw
            isplitl [HO]
            · iexists _; isplitr
              rotate_left
              · iexact HO
              ipureintro; intro p hp
              rcases Finset.mem_insert.mp hp with rfl | hp
              · exact .inr rfl
              rcases Finset.mem_insert.mp hp with rfl | hp
              · exact .inr rfl
              rcases Finset.mem_insert.mp hp with rfl | hp
              · exact .inr rfl
              rcases Finset.mem_insert.mp hp with rfl | hp
              · exact .inr rfl
              exact hW' p hp
            isplitl [HX F8_src F9_src]
            · iapply (Entails.of_eq (xSet_in (xP d L fx) k.val hk).symm)
              isplitl [F8_src]; · iapply (Entails.of_eq (xP_pos d L fx v0).symm); iexact F8_src
              isplitl [F9_src]; · iapply (Entails.of_eq (xP_pos d L fx v1).symm); iexact F9_src
              iexact HX
            isplitl [HOut F10_dst F11_dst]
            · iapply (Entails.of_eq (oSet_in (oMix d L fx (k.val + 1)) k.val hk (by omega)).symm)
              isplitl [F10_dst]; · iapply (Entails.of_eq ((oMix_lt d L fx (t := k.val + 1) (n := 2 * k.val - 2) (by omega)).trans (oQ_pos d L fx hm0.2)).symm); iexact F10_dst
              isplitl [F11_dst]
              · iapply (Entails.of_eq ((oMix_lt d L fx (t := k.val + 1) (n := 2 * k.val - 1) (by omega)).trans (oQ_pos d L fx (n := 2 * k.val - 1) (by have := hm1.2; rwa [show 2 * k.val + 1 - 2 = 2 * k.val - 1 by omega] at this))).symm)
                iapply (Entails.of_eq (congrArg (oqPiece d L fx) (show 2 * k.val + 1 - 2 = 2 * k.val - 1 by omega))); iexact F11_dst
              iapply (Entails.of_eq (oMix_core d L fx k.val)); iexact HOut
            isplitl [H4 F8]
            · iapply (Entails.of_eq (congrArg (inSlotV d L fx a4 cc15_scratch4.sem) (show 2 * k.val + 2 = 2 * (k.val + 1) by ring)))
              iapply (Entails.of_eq (inSlotV_neg d L fx v2).symm)
              isplitl [H4]; · iexists _; iexact H4
              iexact F8
            isplitl [F10 H6]
            · iapply (Entails.of_eq (congrArg (outSlotV d L fx a6 cc15_scratch6.sem) (show 2 * k.val + 2 = 2 * (k.val + 1) by ring)))
              iapply (fl_outV d L fx (off_5 L k v0) (k15_off5_inb L k k15_h2) v0 a4 a6 cc15_scratch6.sem f0 g4 g6' hl6 hin4); iexists _
              isplitr
              rotate_left
              · isplitl [F10]; · iexact F10
                iexact H6
              ipureintro; intro y; rfl
            isplitl [H5 F9]
            · iapply (Entails.of_eq (congrArg (inSlotV d L fx a5 cc15_scratch5.sem) (show 2 * k.val + 3 = 2 * (k.val + 1) + 1 by ring)))
              iapply (Entails.of_eq (inSlotV_neg d L fx v3').symm)
              isplitl [H5]; · iexists _; iexact H5
              iexact F9
            · iapply (Entails.of_eq (congrArg (outSlotV d L fx a7 cc15_scratch7.sem) (show 2 * k.val + 1 + 2 = 2 * (k.val + 1) + 1 by ring)))
              iapply (fl_outV d L fx (off_10 L k v1) (k15_off10_inb L k k15_h5) v1 a5 a7 cc15_scratch7.sem f1 g5 g7' hl7 hin5); iexists _
              isplitr
              rotate_left
              · isplitl [F11]; · iexact F11
                iexact H7
              ipureintro; intro y; rfl
          · -- the last trip of a tile with fifteen pieces: the second slot only drains
            have k15_h1 : k15_cond1 k = 1#1 := (cond1_iff k).mpr (by omega)
            have k15_h2 : k15_cond2 L k = 1#1 := cond2_iff L k
            have k15_h3 : ¬ k15_cond3 L k = 1#1 := fun h => absurd ((cond3_iff L k).mp h) (by omega)
            have k15_h4 : k15_cond4 k = 1#1 := (cond4_iff k).mpr (by omega)
            have k15_h5 : ¬ k15_cond5 L k = 1#1 := fun h => absurd ((cond5_iff L k).mp h) (by first | (unfold valid big at *; omega) | (unfold big at *; omega) | omega)
            have k15_h6 : ¬ k15_cond6 L k = 1#1 := fun h => absurd ((cond6_iff L k).mp h) (by first | (unfold valid big at *; omega) | (unfold big at *; omega) | omega)
            have v0 : valid L (2 * k.val) := by unfold valid big at *; omega
            have v1 : ¬ valid L (2 * k.val + 1) := by unfold valid big at *; omega
            have v2 : ¬ valid L (2 * k.val + 2) := by unfold valid big at *; omega
            have v3' : ¬ valid L (2 * k.val + 3) := by unfold valid big at *; omega
            have hm0 : 2 ≤ 2 * k.val ∧ valid L (2 * k.val - 2) := ⟨by omega, by unfold valid big at *; omega⟩
            have hm1 : 2 ≤ 2 * k.val + 1 ∧ valid L (2 * k.val + 1 - 2) := ⟨by omega, by unfold valid big at *; omega⟩
            ihave S8 := (Entails.of_eq (inSlotV_pos d L fx v0)) $$ S8
            icases S8 with ⟨%g4, %hin4, F8⟩
            ihave S9 := (Entails.of_eq (inSlotV_neg d L fx v1)) $$ S9
            icases S9 with ⟨⟨%g5, H5⟩, F9⟩
            ihave S10 := (Entails.of_eq (outSlotV_pos d L fx hm0)) $$ S10
            icases S10 with ⟨%g6, F10, R6⟩
            ihave S11 := (Entails.of_eq (outSlotV_pos d L fx hm1)) $$ S11
            icases S11 with ⟨%g7, F11, R7⟩
            ihave HX := (Entails.of_eq (xSet_out (xP d L fx) k.val hk)) $$ HX
            icases HX with ⟨-, -, HX⟩
            ihave HOut := (Entails.of_eq (oSet_out (oMix d L fx k.val) k.val hk)) $$ HOut
            icases HOut with ⟨Y0, -, HOut⟩
            ihave Y0 := (Entails.of_eq ((oMix_ge d L fx (t := k.val) (n := 2 * k.val) (by omega)).trans (oP_pos (F := F) d L v0))) $$ Y0
            icases Y0 with ⟨%f0, Y0⟩
            ihave Y0 := (Entails.of_eq (out_congr d L (off_5 L k v0).symm (out_inb L _) (k15_off5_inb L k k15_h2) f0)) $$ Y0
            sl_exec
            sl_for (laneV0 d L g4) $$ [F8_dst R6]
            case region =>
              intro (j : Fin k15_t2_loop.trips) _
              unfold laneV0
              iintro ⟨HA, %g, HB, %hl⟩
              sl_exec
              sl_step
              isplitl [HA]; · iexact HA
              iexists _; isplitl [HB]; · iexact HB
              ipureintro; exact lanes_step d L a4 a6 g4 g j _ _ hl
            · unfold laneV0
              isplitl [F8_dst]; · iexact F8_dst
              iexists _; isplitl [R6]; · iexact R6
              ipureintro; exact lanes_zero d L a4 a6 g4 _
            iintro %_ HI
            unfold laneV0
            icases HI with ⟨H4, %g6', H6, %hl6⟩
            have hl6 : Lanes d L a4 a6 g4 g6' 200 := Eq.mp (congrArg (Lanes d L a4 a6 g4 g6') trips2) hl6
            sl_exec
            sl_step
            isplitr; · iexact Hmw
            isplitl [HO]
            · iexists _; isplitr
              rotate_left
              · iexact HO
              ipureintro; intro p hp
              rcases Finset.mem_insert.mp hp with rfl | hp
              · exact .inr rfl
              rcases Finset.mem_insert.mp hp with rfl | hp
              · exact .inr rfl
              rcases Finset.mem_insert.mp hp with rfl | hp
              · exact .inr rfl
              exact hW' p hp
            isplitl [HX F8_src]
            · iapply (Entails.of_eq (xSet_in (xP d L fx) k.val hk).symm)
              isplitl [F8_src]; · iapply (Entails.of_eq (xP_pos d L fx v0).symm); iexact F8_src
              isplitr; · iapply (Entails.of_eq (xP_neg d L fx v1).symm); iempintro
              iexact HX
            isplitl [HOut F10_dst F11_dst]
            · iapply (Entails.of_eq (oSet_in (oMix d L fx (k.val + 1)) k.val hk (by omega)).symm)
              isplitl [F10_dst]; · iapply (Entails.of_eq ((oMix_lt d L fx (t := k.val + 1) (n := 2 * k.val - 2) (by omega)).trans (oQ_pos d L fx hm0.2)).symm); iexact F10_dst
              isplitl [F11_dst]
              · iapply (Entails.of_eq ((oMix_lt d L fx (t := k.val + 1) (n := 2 * k.val - 1) (by omega)).trans (oQ_pos d L fx (n := 2 * k.val - 1) (by have := hm1.2; rwa [show 2 * k.val + 1 - 2 = 2 * k.val - 1 by omega] at this))).symm)
                iapply (Entails.of_eq (congrArg (oqPiece d L fx) (show 2 * k.val + 1 - 2 = 2 * k.val - 1 by omega))); iexact F11_dst
              iapply (Entails.of_eq (oMix_core d L fx k.val)); iexact HOut
            isplitl [H4 F8]
            · iapply (Entails.of_eq (congrArg (inSlotV d L fx a4 cc15_scratch4.sem) (show 2 * k.val + 2 = 2 * (k.val + 1) by ring)))
              iapply (Entails.of_eq (inSlotV_neg d L fx v2).symm)
              isplitl [H4]; · iexists _; iexact H4
              iexact F8
            isplitl [F10 H6]
            · iapply (Entails.of_eq (congrArg (outSlotV d L fx a6 cc15_scratch6.sem) (show 2 * k.val + 2 = 2 * (k.val + 1) by ring)))
              iapply (fl_outV d L fx (off_5 L k v0) (k15_off5_inb L k k15_h2) v0 a4 a6 cc15_scratch6.sem f0 g4 g6' hl6 hin4); iexists _
              isplitr
              rotate_left
              · isplitl [F10]; · iexact F10
                iexact H6
              ipureintro; intro y; rfl
            isplitl [H5 F9]
            · iapply (Entails.of_eq (congrArg (inSlotV d L fx a5 cc15_scratch5.sem) (show 2 * k.val + 3 = 2 * (k.val + 1) + 1 by ring)))
              iapply (Entails.of_eq (inSlotV_neg d L fx v3').symm)
              isplitl [H5]; · iexists _; iexact H5
              iexact F9
            · iapply (Entails.of_eq (outSlotV_neg d L fx (m := 2 * (k.val + 1) + 1) (by intro h; apply v1; have := h.2; rwa [show 2 * (k.val + 1) + 1 - 2 = 2 * k.val + 1 by omega] at this)).symm)
              isplitl [R7]; · iexists _; iexact R7
              iexact F11
    · have hk0 : k.val = 0 := by omega
      -- the first trip: nothing to drain
      have k15_h1 : ¬ k15_cond1 k = 1#1 := fun h => absurd ((cond1_iff k).mp h) (by omega)
      have k15_h2 : k15_cond2 L k = 1#1 := cond2_iff L k
      have k15_h3 : k15_cond3 L k = 1#1 := (cond3_iff L k).mpr (by omega)
      have k15_h4 : ¬ k15_cond4 k = 1#1 := fun h => absurd ((cond4_iff k).mp h) (by omega)
      have k15_h5 : k15_cond5 L k = 1#1 := (cond5_iff L k).mpr (by first | (unfold valid big at *; omega) | (unfold big at *; omega) | omega)
      have k15_h6 : k15_cond6 L k = 1#1 := (cond6_iff L k).mpr (by first | (unfold valid big at *; omega) | (unfold big at *; omega) | omega)
      have v0 : valid L (2 * k.val) := by unfold valid big at *; omega
      have v1 : valid L (2 * k.val + 1) := by unfold valid big at *; omega
      have v2 : valid L (2 * k.val + 2) := by unfold valid big at *; omega
      have v3' : valid L (2 * k.val + 3) := by unfold valid big at *; omega
      have hm0 : ¬ (2 ≤ 2 * k.val ∧ valid L (2 * k.val - 2)) := by omega
      have hm1 : ¬ (2 ≤ 2 * k.val + 1 ∧ valid L (2 * k.val + 1 - 2)) := by omega
      ihave S8 := (Entails.of_eq (inSlotV_pos d L fx v0)) $$ S8
      icases S8 with ⟨%g4, %hin4, F8⟩
      ihave S9 := (Entails.of_eq (inSlotV_pos d L fx v1)) $$ S9
      icases S9 with ⟨%g5, %hin5, F9⟩
      ihave S10 := (Entails.of_eq (outSlotV_neg d L fx hm0)) $$ S10
      icases S10 with ⟨⟨%g6, R6⟩, F10⟩
      ihave S11 := (Entails.of_eq (outSlotV_neg d L fx hm1)) $$ S11
      icases S11 with ⟨⟨%g7, R7⟩, F11⟩
      ihave HX := (Entails.of_eq (xSet_out (xP d L fx) k.val hk)) $$ HX
      icases HX with ⟨X2, X3, HX⟩
      ihave X2 := (Entails.of_eq (xP_pos d L fx v2)) $$ X2
      ihave X2 := (Entails.of_eq (in_congr d L (off_6 L k v2).symm (in_inb L _) (k15_off6_inb L k k15_h3) fx)) $$ X2
      ihave X3 := (Entails.of_eq (xP_pos d L fx v3')) $$ X3
      ihave X3 := (Entails.of_eq (in_congr d L (off_11 L k v3').symm (in_inb L _) (k15_off11_inb L k k15_h6) fx)) $$ X3
      ihave HOut := (Entails.of_eq (oSet_out (oMix d L fx k.val) k.val hk)) $$ HOut
      icases HOut with ⟨Y0, Y1, HOut⟩
      ihave Y0 := (Entails.of_eq ((oMix_ge d L fx (t := k.val) (n := 2 * k.val) (by omega)).trans (oP_pos (F := F) d L v0))) $$ Y0
      icases Y0 with ⟨%f0, Y0⟩
      ihave Y0 := (Entails.of_eq (out_congr d L (off_5 L k v0).symm (out_inb L _) (k15_off5_inb L k k15_h2) f0)) $$ Y0
      ihave Y1 := (Entails.of_eq ((oMix_ge d L fx (t := k.val) (n := 2 * k.val + 1) (by omega)).trans (oP_pos (F := F) d L v1))) $$ Y1
      icases Y1 with ⟨%f1, Y1⟩
      ihave Y1 := (Entails.of_eq (out_congr d L (off_10 L k v1).symm (out_inb L _) (k15_off10_inb L k k15_h5) f1)) $$ Y1
      sl_exec
      sl_for (laneV0 d L g4) $$ [F8_dst R6]
      case region =>
        intro (j : Fin k15_t2_loop.trips) _
        unfold laneV0
        iintro ⟨HA, %g, HB, %hl⟩
        sl_exec
        sl_step
        isplitl [HA]; · iexact HA
        iexists _; isplitl [HB]; · iexact HB
        ipureintro; exact lanes_step d L a4 a6 g4 g j _ _ hl
      · unfold laneV0
        isplitl [F8_dst]; · iexact F8_dst
        iexists _; isplitl [R6]; · iexact R6
        ipureintro; exact lanes_zero d L a4 a6 g4 _
      iintro %_ HI
      unfold laneV0
      icases HI with ⟨H4, %g6', H6, %hl6⟩
      have hl6 : Lanes d L a4 a6 g4 g6' 200 := Eq.mp (congrArg (Lanes d L a4 a6 g4 g6') trips2) hl6
      sl_exec
      sl_for (laneV1 d L g5) $$ [F9_dst R7]
      case region =>
        intro (j : Fin k15_t3_loop.trips) _
        unfold laneV1
        iintro ⟨HA, %g, HB, %hl⟩
        sl_exec
        sl_step
        isplitl [HA]; · iexact HA
        iexists _; isplitl [HB]; · iexact HB
        ipureintro; exact lanes_step' d L a5 a7 g5 g j _ _ hl
      · unfold laneV1
        isplitl [F9_dst]; · iexact F9_dst
        iexists _; isplitl [R7]; · iexact R7
        ipureintro; exact lanes_zero d L a5 a7 g5 _
      iintro %_ HI
      unfold laneV1
      icases HI with ⟨H5, %g7', H7, %hl7⟩
      have hl7 : Lanes d L a5 a7 g5 g7' 200 := Eq.mp (congrArg (Lanes d L a5 a7 g5 g7') trips3) hl7
      sl_exec
      sl_step
      isplitr; · iexact Hmw
      isplitl [HO]
      · iexists _; isplitr
        rotate_left
        · iexact HO
        ipureintro; intro p hp
        rcases Finset.mem_insert.mp hp with rfl | hp
        · exact .inr rfl
        rcases Finset.mem_insert.mp hp with rfl | hp
        · exact .inr rfl
        exact hW' p hp
      isplitl [HX F8_src F9_src]
      · iapply (Entails.of_eq (xSet_in (xP d L fx) k.val hk).symm)
        isplitl [F8_src]; · iapply (Entails.of_eq (xP_pos d L fx v0).symm); iexact F8_src
        isplitl [F9_src]; · iapply (Entails.of_eq (xP_pos d L fx v1).symm); iexact F9_src
        iexact HX
      isplitl [HOut]
      · iapply (Entails.of_eq (congrArg (fun s => bigSep s (oMix d L fx (k.val + 1))) (show oCore k.val = oSet (k.val + 1) by rw [hk0]; decide)))
        iapply (Entails.of_eq (oMix_core d L fx k.val)); iexact HOut
      isplitl [F8]
      · iapply (Entails.of_eq (congrArg (inSlotV d L fx a4 cc15_scratch4.sem) (show 2 * k.val + 2 = 2 * (k.val + 1) by ring)))
        iapply (fl_inV d L fx (off_6 L k v2) (k15_off6_inb L k k15_h3) v2 a4 cc15_scratch4.sem); iexists _, _
        isplitr
        rotate_left
        · iexact F8
        ipureintro; intro y; rfl
      isplitl [F10 H6]
      · iapply (Entails.of_eq (congrArg (outSlotV d L fx a6 cc15_scratch6.sem) (show 2 * k.val + 2 = 2 * (k.val + 1) by ring)))
        iapply (fl_outV d L fx (off_5 L k v0) (k15_off5_inb L k k15_h2) v0 a4 a6 cc15_scratch6.sem f0 g4 g6' hl6 hin4); iexists _
        isplitr
        rotate_left
        · isplitl [F10]; · iexact F10
          iexact H6
        ipureintro; intro y; rfl
      isplitl [F9]
      · iapply (Entails.of_eq (congrArg (inSlotV d L fx a5 cc15_scratch5.sem) (show 2 * k.val + 3 = 2 * (k.val + 1) + 1 by ring)))
        iapply (fl_inV d L fx (off_11 L k v3') (k15_off11_inb L k k15_h6) v3' a5 cc15_scratch5.sem); iexists _, _
        isplitr
        rotate_left
        · iexact F9
        ipureintro; intro y; rfl
      · iapply (Entails.of_eq (congrArg (outSlotV d L fx a7 cc15_scratch7.sem) (show 2 * k.val + 1 + 2 = 2 * (k.val + 1) + 1 by ring)))
        iapply (fl_outV d L fx (off_10 L k v1) (k15_off10_inb L k k15_h5) v1 a5 a7 cc15_scratch7.sem f1 g5 g7' hl7 hin5); iexists _
        isplitr
        rotate_left
        · isplitl [F11]; · iexact F11
          iexact H7
        ipureintro; intro y; rfl
  · unfold invV
    isplitr; · iexact Hmw
    isplitl [HO]
    · iexists W; isplitr
      · ipureintro; exact fun p hp => .inl hp
      · iexact HO
    isplitl [HX]; · iexact HX
    isplitl [HOut]; · iapply (Entails.of_eq (oMix_zero d L fx).symm); iexact HOut
    isplitl [S8]; · iexact S8
    isplitl [H6 Hs10]
    · rw [outSlotV_neg d L fx (by omega)]; isplitl [H6]; · iexists _; iexact H6
      iexact Hs10
    isplitl [S9]; · iexact S9
    rw [outSlotV_neg d L fx (by omega)]; isplitl [H7]; · iexists _; iexact H7
    iexact Hs11
  iintro %acc' HI
  ihave HI := (Entails.of_eq (congrArg (fun t => invV d L O W fx t acc') trips1)) $$ HI
  unfold invV
  icases HI with ⟨-, ⟨%W', %hW', HO⟩, HX, HOut, S8, S10, S9, S11⟩
  have nv16 : ¬ valid L (2 * 8) := by unfold valid; omega
  have nv17 : ¬ valid L (2 * 8 + 1) := by unfold valid; omega
  have hm14 : 2 ≤ 2 * 8 ∧ valid L (2 * 8 - 2) := ⟨by omega, Or.inl (by omega)⟩
  ihave S8 := (Entails.of_eq (inSlotV_neg d L fx nv16)) $$ S8
  icases S8 with ⟨⟨%g4', H4⟩, Hs8⟩
  ihave S9 := (Entails.of_eq (inSlotV_neg d L fx nv17)) $$ S9
  icases S9 with ⟨⟨%g5', H5⟩, Hs9⟩
  ihave S10 := (Entails.of_eq (outSlotV_pos d L fx hm14)) $$ S10
  icases S10 with ⟨%g6', F10, R6⟩
  by_cases hb : big L
  · have k15_h8 : k15_cond8 L = 1#1 := (cond8_iff L).mpr hb
    have hm15 : 2 ≤ 2 * 8 + 1 ∧ valid L (2 * 8 + 1 - 2) := ⟨by omega, Or.inr ⟨by omega, hb⟩⟩
    ihave S11 := (Entails.of_eq (outSlotV_pos d L fx hm15)) $$ S11
    icases S11 with ⟨%g7', F11, R7⟩
    sl_exec
    sl_step
    isplitl [HX]; · iapply (xRange_end d L fx); iexact HX
    isplitl [HOut F10_dst F11_dst]
    · iapply (Entails.of_eq (oRange_end (oQ d L fx)).symm)
      isplitl [F10_dst]; · iapply (Entails.of_eq (oQ_pos d L fx hm14.2).symm); iexact F10_dst
      isplitl [F11_dst]; · iapply (Entails.of_eq (oQ_pos d L fx hm15.2).symm); iexact F11_dst
      iapply (Entails.of_eq (oMix_end d L fx)); iexact HOut
    isplitl [H4]; · iexists _; iexact H4
    isplitl [H5]; · iexists _; iexact H5
    isplitl [R6]; · iexists _; iexact R6
    isplitl [R7]; · iexists _; iexact R7
    isplitl [Hs8]; · iexact Hs8
    isplitl [Hs9]; · iexact Hs9
    isplitl [F10]; · iexact F10
    isplitl [F11]; · iexact F11
    isplitl [HO]
    · iexists _; isplitr
      rotate_left
      · iexact HO
      ipureintro; intro p hp
      rcases Finset.mem_insert.mp hp with rfl | hp
      · exact .inr rfl
      rcases Finset.mem_insert.mp hp with rfl | hp
      · exact .inr rfl
      exact hW' p hp
    iexact HR
  · have k15_h8 : ¬ k15_cond8 L = 1#1 := fun h => hb ((cond8_iff L).mp h)
    have hm15 : ¬ (2 ≤ 2 * 8 + 1 ∧ valid L (2 * 8 + 1 - 2)) := by intro h; have := h.2; unfold valid at this; omega
    ihave S11 := (Entails.of_eq (outSlotV_neg d L fx hm15)) $$ S11
    icases S11 with ⟨⟨%g7', R7⟩, F11⟩
    sl_exec
    sl_step
    isplitl [HX]; · iapply (xRange_end d L fx); iexact HX
    isplitl [HOut F10_dst]
    · iapply (Entails.of_eq (oRange_end (oQ d L fx)).symm)
      isplitl [F10_dst]; · iapply (Entails.of_eq (oQ_pos d L fx hm14.2).symm); iexact F10_dst
      isplitr; · iapply (Entails.of_eq (oQ_neg d L fx (n := 15) (by unfold valid; omega)).symm); iempintro
      iapply (Entails.of_eq (oMix_end d L fx)); iexact HOut
    isplitl [H4]; · iexists _; iexact H4
    isplitl [H5]; · iexists _; iexact H5
    isplitl [R6]; · iexists _; iexact R6
    isplitl [R7]; · iexists _; iexact R7
    isplitl [Hs8]; · iexact Hs8
    isplitl [Hs9]; · iexact Hs9
    isplitl [F10]; · iexact F10
    isplitl [F11]; · iexact F11
    isplitl [HO]
    · iexists _; isplitr
      rotate_left
      · iexact HO
      ipureintro; intro p hp
      rcases Finset.mem_insert.mp hp with rfl | hp
      · exact .inr rfl
      exact hW' p hp
    iexact HR

/-! The subcore's scoped storage: the four staging buffers and the four semaphores of this call, and the rest. -/

abbrev c8 : GSem nD τ sig := (thr d L, SemLoc.dma cc15_scratch4.sem)
abbrev c9 : GSem nD τ sig := (thr d L, SemLoc.dma cc15_scratch5.sem)
abbrev c10 : GSem nD τ sig := (thr d L, SemLoc.dma cc15_scratch6.sem)
abbrev c11 : GSem nD τ sig := (thr d L, SemLoc.dma cc15_scratch7.sem)

omit [FloatOps F] in
theorem ownSems0_V :
    (ownSems0 (thr d L) : sProp 𝕄)
      = iprop(semVal (c8 d L) 0 ∗ semVal (c9 d L) 0 ∗ semVal (c10 d L) 0 ∗ semVal (c11 d L) 0
          ∗ bigSep (((((ownCells (thr d L)).erase (c8 d L)).erase (c9 d L)).erase (c10 d L)).erase (c11 d L)) fun g => semVal g 0) := by
  unfold SparseCore.Cfg.ownSems0
  rw [SparseCore.bigSep_erase' ((mem_ownCells (g := c8 d L)).mpr ⟨rfl, by
      show (SemLoc.dma cc15_scratch4.sem : SemLoc sig).isScoped .scVector = true; decide⟩),
    SparseCore.bigSep_erase' (Finset.mem_erase.mpr ⟨fun e => absurd (Prod.mk.inj e).2 (by decide), (mem_ownCells (g := c9 d L)).mpr ⟨rfl, by
      show (SemLoc.dma cc15_scratch5.sem : SemLoc sig).isScoped .scVector = true; decide⟩⟩),
    SparseCore.bigSep_erase' (Finset.mem_erase.mpr ⟨fun e => absurd (Prod.mk.inj e).2 (by decide), Finset.mem_erase.mpr ⟨fun e => absurd (Prod.mk.inj e).2 (by decide),
      (mem_ownCells (g := c10 d L)).mpr ⟨rfl, by show (SemLoc.dma cc15_scratch6.sem : SemLoc sig).isScoped .scVector = true; decide⟩⟩⟩),
    SparseCore.bigSep_erase' (Finset.mem_erase.mpr ⟨fun e => absurd (Prod.mk.inj e).2 (by decide), Finset.mem_erase.mpr ⟨fun e => absurd (Prod.mk.inj e).2 (by decide),
      Finset.mem_erase.mpr ⟨fun e => absurd (Prod.mk.inj e).2 (by decide),
      (mem_ownCells (g := c11 d L)).mpr ⟨rfl, by show (SemLoc.dma cc15_scratch7.sem : SemLoc sig).isScoped .scVector = true; decide⟩⟩⟩⟩)]

abbrev pV (L : grid15.Coords) : Proc τ := Proc.scVector (cV L) (jV L)

omit [FloatOps F] in
theorem ownBufs_V :
    (ownBufs (thr d L) : sProp 𝕄)
      = iprop((∃ f, (thr d L).loc cc15_scratch0 ↦{fullShare} f) ∗ (∃ f, (thr d L).loc cc15_scratch1 ↦{fullShare} f)
          ∗ (∃ f, (thr d L).loc cc15_scratch2 ↦{fullShare} f) ∗ (∃ f, (thr d L).loc cc15_scratch3 ↦{fullShare} f)
          ∗ bigSep (((((ownRefs (τ := τ) (pV L)).erase ((pV L).devRef cc15_scratch0)).erase ((pV L).devRef cc15_scratch1)).erase
              ((pV L).devRef cc15_scratch2)).erase ((pV L).devRef cc15_scratch3))
              fun b => iprop(∃ f, ((d, b) : Loc nD τ sig) ↦{fullShare} f)) := by
  unfold SparseCore.Cfg.ownBufs
  refine (SparseCore.bigSep_erase' (SparseCore.Cfg.mem_ownRefs_of_owner (p := pV L) (b := (pV L).devRef cc15_scratch0) rfl)).trans ?_
  rw [SparseCore.bigSep_erase' (Finset.mem_erase.mpr ⟨fun e => absurd (Proc.devRef_injective _ e) (show (cc15_scratch1 : Ref sig .scVector) ≠ cc15_scratch0 by decide),
      SparseCore.Cfg.mem_ownRefs_of_owner (p := pV L) (b := (pV L).devRef cc15_scratch1) rfl⟩),
    SparseCore.bigSep_erase' (Finset.mem_erase.mpr ⟨fun e => absurd (Proc.devRef_injective _ e) (show (cc15_scratch2 : Ref sig .scVector) ≠ cc15_scratch1 by decide),
      Finset.mem_erase.mpr ⟨fun e => absurd (Proc.devRef_injective _ e) (show (cc15_scratch2 : Ref sig .scVector) ≠ cc15_scratch0 by decide),
      SparseCore.Cfg.mem_ownRefs_of_owner (p := pV L) (b := (pV L).devRef cc15_scratch2) rfl⟩⟩),
    SparseCore.bigSep_erase' (Finset.mem_erase.mpr ⟨fun e => absurd (Proc.devRef_injective _ e) (show (cc15_scratch3 : Ref sig .scVector) ≠ cc15_scratch2 by decide),
      Finset.mem_erase.mpr ⟨fun e => absurd (Proc.devRef_injective _ e) (show (cc15_scratch3 : Ref sig .scVector) ≠ cc15_scratch1 by decide),
      Finset.mem_erase.mpr ⟨fun e => absurd (Proc.devRef_injective _ e) (show (cc15_scratch3 : Ref sig .scVector) ≠ cc15_scratch0 by decide),
      SparseCore.Cfg.mem_ownRefs_of_owner (p := pV L) (b := (pV L).devRef cc15_scratch3) rfl⟩⟩⟩)]

/-- The rest of the subcore's scoped storage, which the task does not touch. -/
def restR : sProp 𝕄 :=
  iprop((bigSep (((((ownRefs (τ := τ) (pV L)).erase ((pV L).devRef cc15_scratch0)).erase ((pV L).devRef cc15_scratch1)).erase
              ((pV L).devRef cc15_scratch2)).erase ((pV L).devRef cc15_scratch3))
              fun b => iprop(∃ f, ((d, b) : Loc nD τ sig) ↦{fullShare} f))
      ∗ bigSep (((((ownCells (thr d L)).erase (c8 d L)).erase (c9 d L)).erase (c10 d L)).erase (c11 d L)) fun g => semVal g 0)

theorem body_pre (hO : ∀ g, O g none = 0) :
    iprop(levAts (K (F := F)).L (K (F := F)).lev ∗ emp ∗ goRes d L fx ∗ ownBufs (thr d L) ∗ ownSems0 (thr d L) ∗ owes (thr d L) O W)
      ⊢ runPre d L O W fx (restR (F := F) d L) := by
  rw [ownSems0_V, ownBufs_V]
  unfold goRes runPre restR
  iintro ⟨#Hlv, -, ⟨HX, HOut⟩, ⟨H4, H5, H6, H7, Hbufs⟩, ⟨Hs8, Hs9, Hs10, Hs11, Hsems⟩, HO⟩
  ihave Hmw := ((K (F := F)).mayWaits_none (thr := thr d L) hO) $$ Hlv
  isplitr; · iexact Hmw
  isplitl [HO]; · iexact HO
  isplitl [HX]; · iexact HX
  isplitl [HOut]; · iexact HOut
  isplitl [H4]; · iexact H4
  isplitl [H5]; · iexact H5
  isplitl [H6]; · iexact H6
  isplitl [H7]; · iexact H7
  isplitl [Hs8]; · iexact Hs8
  isplitl [Hs9]; · iexact Hs9
  isplitl [Hs10]; · iexact Hs10
  isplitl [Hs11]; · iexact Hs11
  isplitl [Hbufs]; · iexact Hbufs
  iexact Hsems

theorem body_post :
    runPost d L O W fx (restR (F := F) d L)
      ⊢ iprop(tdRes d L fx ∗ ownBufs (thr d L) ∗ ownSems0 (thr d L) ∗ ∃ W', ⌜∀ p ∈ W', p ∈ W ∨ p.2 = none⌝ ∗ owes (thr d L) O W') := by
  rw [ownSems0_V, ownBufs_V]
  unfold tdRes runPost restR
  iintro ⟨HX, HOut, H4, H5, H6, H7, Hs8, Hs9, Hs10, Hs11, HW, Hbufs, Hsems⟩
  isplitl [HX HOut]
  · isplitl [HX]; · iexact HX
    iexact HOut
  isplitl [H4 H5 H6 H7 Hbufs]
  · isplitl [H4]; · iexact H4
    isplitl [H5]; · iexact H5
    isplitl [H6]; · iexact H6
    isplitl [H7]; · iexact H7
    iexact Hbufs
  isplitl [Hs8 Hs9 Hs10 Hs11 Hsems]
  · isplitl [Hs8]; · iexact Hs8
    isplitl [Hs9]; · iexact Hs9
    isplitl [Hs10]; · iexact Hs10
    isplitl [Hs11]; · iexact Hs11
    iexact Hsems
  iexact HW

/-- The task in the launch theorem's shape: from what the call hands the tile and the subcore's scoped storage to
    what the tile hands back and the storage again. -/
theorem tile_body (hF : (K (F := F)).Facts) (hO : ∀ g, O g none = 0) :
    iprop(levAts (K (F := F)).L (K (F := F)).lev ∗ emp ∗ goRes d L fx ∗ scopedBufs (thr d L) ∗ scopedSems0 (thr d L) ∗ owes (thr d L) O W)
      ⊢ wp frame (wpE (defs₀ (F := F)) 𝒱₀ (thr d L) none) Set.univ
          (cc15_sc_group L xtW (Memref.isWhole_whole _) oW (Memref.isWhole_whole _) a4 (Memref.isWhole_whole _) a5 (Memref.isWhole_whole _)
            a6 (Memref.isWhole_whole _) a7 (Memref.isWhole_whole _) cc15_scratch4 cc15_scratch5 cc15_scratch6 cc15_scratch7)
          fun _ => iprop(tdRes d L fx ∗ scopedBufs (thr d L) ∗ scopedSems0 (thr d L)
            ∗ ∃ W', ⌜∀ p ∈ W', p ∈ W ∨ p.2 = none⌝ ∗ owes (thr d L) O W') := by
  rw [(K (F := F)).scopedBufs_V hF d (cV L) (jV L), SparseCore.Cfg.scopedSems0_V (Val := Elt F) d (cV L) (jV L)]
  exact (body_pre d L O W fx hO).trans ((tile_run d L O W fx (restR (F := F) d L)).trans (wp_mono frame _ _ fun _ => body_post d L O W fx))

end Tile

end Cert.Proof.TileB15

end
-- ==== Proof.TileVal16.lean ====
/-
  What the staging buffers of one vector subcore hold while it copies a piece of 3200 consecutive elements of row 16 of
  the transposed argument into the flat result, read index by index. No program and no ownership here: only the contents.

  A transfer lands the piece in row 0 of an 8 × 3200 staging array (`InRow`: position (0, t) of that row holds element
  (0, pos + t) of the transposed argument, `pos` the piece's first column). A loop of 200 trips copies that row, 16 lanes
  per trip, into the first 3200 elements of a flat staging array of 25600: trip `j` reads the 1 × 16 window at columns
  [16 j, 16 j + 16) of row 0 and writes it, flattened, at elements [16 j, 16 j + 16). After `j` trips the first 16 j
  elements of the flat array are the first 16 j elements of the row (`Lanes`); a trip extends the prefix by 16
  (`lanes_step`: an element below 16 j is outside the window written and keeps its value, an element of the window reads
  the lane written there, which is the row's element at the same column). A second transfer writes the first 3200
  elements of the flat array to the piece of the result at the same `pos`; so every element of that piece of the result
  holds the element of row 16 of the transposed argument at its own position (`out_written`): the composite of the three
  index maps t ↦ (0, pos + t) ↦ (0, t) ↦ t ↦ pos + t is the identity on positions of the row.
-/
import proofs.«206869_g37898791420194_cont_8to1_b_558_20_alg».proof.Proof.TileK16Defs
import proofs.«206869_g37898791420194_cont_8to1_b_558_20_alg».proof.Proof.Spec
import Idealize.ShloMosaic.Lib.WritesUnit
import Idealize.ShloMosaic.Lib.ValueLayout

noncomputable section

namespace Cert.Proof.TileVal16

open Cert.Proof.TileK16 Cert.KernelIdeal Cert.KernelIdeal.Gen
open Idealize.ShloMosaic Idealize.ShloMosaic.ValueIdx

variable {F : FTy → Type} [FloatOps F]
variable (d : Dev nD) (L : grid16.Coords)
variable (fx : Buf (Elt F) ((Memref.whole main_v0_scv : Memref sig .scVector .hbm S22x1600000 .f32).view.loc (thr d L)))

abbrev rowRect : Rect S8x3200 := Rect.unit (s := S8x3200) ![0, 0] S1x3200.size inb_S8x3200_S1x3200_0_0

/-- row 0 of the staging array is piece n of the argument row -/
def InRow (a : Memref sig .scVector .vmem S8x3200 .f32) (ga : Buf (Elt F) (a.view.loc (thr d L))) (n : ℕ) : Prop :=
  ∀ y : S1x3200.Idx, a.view.read (Elt F) ga (rowRect.emb y) = (inM L n).view.read (Elt F) fx y

theorem inRow_fetch (a : Memref sig .scVector .vmem S8x3200 .f32) (gold : Buf (Elt F) (a.view.loc (thr d L)))
    (w : S1x3200.Idx → Elt F .f32) (n : ℕ) (hw : ∀ y, w y = (inM L n).view.read (Elt F) fx y) :
    InRow d L fx a (a.view.writes (Elt F) gold [⟨rowRect, w⟩]) n :=
  fun y => (View.read_writes_cons_emb a.view gold rowRect w [] y).trans (hw y)

def Lanes (a : Memref sig .scVector .vmem S8x3200 .f32) (b : Memref sig .scVector .vmem S25600 .f32)
    (ga : Buf (Elt F) (a.view.loc (thr d L))) (gb : Buf (Elt F) (b.view.loc (thr d L))) (j : ℕ) : Prop :=
  ∀ (r : ℕ) (hr : r < 3200), r < 16 * j →
    b.view.read (Elt F) gb (ix1 (⟨r, by omega⟩ : Fin 25600)) = a.view.read (Elt F) ga (ix2 (0 : Fin 8) (⟨r, hr⟩ : Fin 3200))

theorem lanes_zero (a : Memref sig .scVector .vmem S8x3200 .f32) (b : Memref sig .scVector .vmem S25600 .f32)
    (ga : Buf (Elt F) (a.view.loc (thr d L))) (gb : Buf (Elt F) (b.view.loc (thr d L))) : Lanes d L a b ga gb 0 := by
  intro r hr h; omega

/-- The 1 × 16 window at column `c` of the staging array, read at lane `t`, is element `(0, c + t)`. -/
theorem idx_window {off : Fin 2 → ℕ} {c : ℕ} (h : off = ![0, c]) (p : ∀ a', off a' + S1x16.size a' ≤ S8x3200.size a')
    (t : Fin 16) (hr : c + t.val < 3200) :
    (Rect.unit (s := S8x3200) off S1x16.size p).toLoadRect.idx (ix2 (0 : Fin 1) t) = ix2 (0 : Fin 8) (⟨c + t.val, hr⟩ : Fin 3200) := by
  subst h
  funext a'; apply Fin.ext
  rw [LoadRect.idx_apply]
  match a' with
  | ⟨0, _⟩ => show 0 + 1 * 0 = 0; omega
  | ⟨1, _⟩ => show c + 1 * t.val = c + t.val; omega

/-- One trip of a lane-copy loop, the offsets given by their closed forms. -/
theorem lanes_step_core (a : Memref sig .scVector .vmem S8x3200 .f32) (b : Memref sig .scVector .vmem S25600 .f32)
    (ga : Buf (Elt F) (a.view.loc (thr d L))) (gb : Buf (Elt F) (b.view.loc (thr d L)))
    (t : ℕ) {off3 : Fin 2 → ℕ} {off4 : Fin 1 → ℕ} (h3 : off3 = ![0, 16 * t]) (h4 : off4 = ![16 * t])
    (p3 : ∀ a', off3 a' + S1x16.size a' ≤ S8x3200.size a') (p4 : ∀ a', off4 a' + S16.size a' ≤ S25600.size a')
    (h : Lanes d L a b ga gb t) :
    Lanes d L a b ga (b.view.writes (Elt F) gb [⟨Rect.unit (s := S25600) off4 S16.size p4,
      shapeCast S16 (a.view.readAt (Elt F) (Rect.unit (s := S8x3200) off3 S1x16.size p3).toLoadRect ga) shapeCasts_S1x16_S16⟩]) (t + 1) := by
  intro r hr hlt
  by_cases hlo : r < 16 * t
  · refine (View.read_writes_cons_unit_of_not_mem b.view gb p4 _ [] _ h4 (0 : Fin 1) (Or.inl ?_)).trans (h r hr hlo)
    show r < 16 * t
    exact hlo
  · have hx : r - 16 * t < 16 := by omega
    refine (View.read_writes_cons_unit_of_mem b.view gb p4 _ [] _ (ix1 (⟨r - 16 * t, hx⟩ : Fin 16)) h4 ?_).trans ?_
    · intro a'
      match a' with
      | ⟨0, _⟩ => show r = 16 * t + (r - 16 * t); omega
    · rw [shapeCast_1a_a_apply, View.readAt_apply, idx_window h3 p3 ⟨r - 16 * t, hx⟩ (by show 16 * t + (r - 16 * t) < 3200; omega)]
      congr 2
      apply Fin.ext
      show 16 * t + (r - 16 * t) = r
      omega

theorem lanes_step (a : Memref sig .scVector .vmem S8x3200 .f32) (b : Memref sig .scVector .vmem S25600 .f32)
    (ga : Buf (Elt F) (a.view.loc (thr d L))) (gb : Buf (Elt F) (b.view.loc (thr d L)))
    (j : Fin k16_t2_loop.trips) (p3 : ∀ a', (k16_off3 j) a' + S1x16.size a' ≤ S8x3200.size a')
    (p4 : ∀ a', (k16_off4 j) a' + S16.size a' ≤ S25600.size a') (h : Lanes d L a b ga gb j.val) :
    Lanes d L a b ga (b.view.writes (Elt F) gb [⟨Rect.unit (s := S25600) (k16_off4 j) S16.size p4,
      k16_pay1 (a.view.readAt (Elt F) (Rect.unit (s := S8x3200) (k16_off3 j) S1x16.size p3).toLoadRect ga)⟩]) (j.val + 1) :=
  lanes_step_core d L a b ga gb j.val (k16_off3_eq j) (k16_off4_eq j) p3 p4 h

theorem lanes_step' (a : Memref sig .scVector .vmem S8x3200 .f32) (b : Memref sig .scVector .vmem S25600 .f32)
    (ga : Buf (Elt F) (a.view.loc (thr d L))) (gb : Buf (Elt F) (b.view.loc (thr d L)))
    (j : Fin k16_t3_loop.trips) (p3 : ∀ a', (k16_off8 j) a' + S1x16.size a' ≤ S8x3200.size a')
    (p4 : ∀ a', (k16_off9 j) a' + S16.size a' ≤ S25600.size a') (h : Lanes d L a b ga gb j.val) :
    Lanes d L a b ga (b.view.writes (Elt F) gb [⟨Rect.unit (s := S25600) (k16_off9 j) S16.size p4,
      k16_pay2 (a.view.readAt (Elt F) (Rect.unit (s := S8x3200) (k16_off8 j) S1x16.size p3).toLoadRect ga)⟩]) (j.val + 1) :=
  lanes_step_core d L a b ga gb j.val (k16_off8_eq j) (k16_off9_eq j) p3 p4 h

/-- Position `y` of the write-out window of the flat staging array is its element `y 0`. -/
theorem stg_emb (y : S3200.Idx) (hy : (y 0).val < 25600) :
    (Rect.unit (s := S25600) ![0] S3200.size inb_S25600_S3200_0).emb y = ix1 (⟨(y 0).val, hy⟩ : Fin 25600) := by
  funext a'; apply Fin.ext
  match a' with
  | ⟨0, _⟩ => show 0 + 1 * (y 0).val = (y 0).val; omega

/-- Position `(0, t)` of row 0 of the staging array is its element `(0, t)`. -/
theorem row_emb (t : Fin 3200) : rowRect.emb (ix2 (0 : Fin 1) t) = ix2 (0 : Fin 8) t := by
  funext a'; apply Fin.ext
  match a' with
  | ⟨0, _⟩ => show 0 + 1 * 0 = 0; omega
  | ⟨1, _⟩ => show 0 + 1 * t.val = t.val; omega

/-- Position `(0, t)` of piece `n` of the argument row is element `(0, pos + t)` of the transposed argument;
    position `y` of piece `n` of the result is element `pos + y 0` of the result. -/
theorem in_emb (n : ℕ) (t : Fin 3200) (h : pos L n + t.val < 1600000) :
    (inM L n).view.emb (ix2 (0 : Fin 1) t) = ix2 (16 : Fin 22) (⟨pos L n + t.val, h⟩ : Fin 1600000) := by
  funext a'; apply Fin.ext
  match a' with
  | ⟨0, _⟩ => show 16 + 1 * 0 = 16; omega
  | ⟨1, _⟩ => show pos L n + 1 * t.val = pos L n + t.val; omega

theorem out_emb (n : ℕ) (y : S3200.Idx) (h : pos L n + (y 0).val < 1600000) :
    (outM L n).view.emb y = ix1 (⟨pos L n + (y 0).val, h⟩ : Fin 1600000) := by
  funext a'; apply Fin.ext
  match a' with
  | ⟨0, _⟩ => show pos L n + 1 * (y 0).val = pos L n + (y 0).val; omega

/-- Both lane-copy loops run 200 trips: 200 · 16 = 3200, the whole row. -/
theorem trips2 : k16_t2_loop.trips = 200 := by decide
theorem trips3 : k16_t3_loop.trips = 200 := by decide

/-- After all its trips a lane-copy loop has copied the whole row. -/
theorem lanes_all (a : Memref sig .scVector .vmem S8x3200 .f32) (b : Memref sig .scVector .vmem S25600 .f32)
    (ga : Buf (Elt F) (a.view.loc (thr d L))) (gb : Buf (Elt F) (b.view.loc (thr d L)))
    (h : Lanes d L a b ga gb k16_t2_loop.trips) : Lanes d L a b ga gb 200 := trips2 ▸ h
theorem lanes_all' (a : Memref sig .scVector .vmem S8x3200 .f32) (b : Memref sig .scVector .vmem S25600 .f32)
    (ga : Buf (Elt F) (a.view.loc (thr d L))) (gb : Buf (Elt F) (b.view.loc (thr d L)))
    (h : Lanes d L a b ga gb k16_t3_loop.trips) : Lanes d L a b ga gb 200 := trips3 ▸ h

/-- The write-out of a piece: the first 3200 elements of the flat staging array, which the 200 lane copies filled from
    row 0 of the staging array, which the fetch filled from piece `n` of row 16 of the transposed argument, land at
    piece `n` of the result, at the same positions of the row. -/
theorem out_written (a : Memref sig .scVector .vmem S8x3200 .f32) (b : Memref sig .scVector .vmem S25600 .f32) (n : ℕ)
    (ga : Buf (Elt F) (a.view.loc (thr d L))) (gb : Buf (Elt F) (b.view.loc (thr d L)))
    (f0 : Buf (Elt F) ((outM L n).view.loc (thr d L))) (w : S3200.Idx → Elt F .f32)
    (hw : ∀ y, w y = (stg b).view.read (Elt F) gb y) (hl : Lanes d L a b ga gb 200) (hr : InRow d L fx a ga n) (hv : valid L n) :
    ∀ i ∈ (outM L n).view.set, ((outM L n).view.writes (Elt F) f0 [⟨Rect.whole _, w⟩]) i = Cert.Spec.row 16 fx i := by
  intro i hi
  obtain ⟨y, -, rfl⟩ := Finset.mem_map.mp hi
  have hy : (y 0).val < 3200 := (y 0).isLt
  have hp : pos L n + (y 0).val < 1600000 := by unfold pos; omega
  have e1 : (outM L n).view.writes (Elt F) f0 [⟨Rect.whole _, w⟩] ((outM L n).view.emb y) = w y := by
    have h := View.read_writes_cons_emb (outM L n).view f0 (Rect.whole _) w [] y
    rw [Rect.emb_whole_apply] at h
    exact (cast_eq _ _).symm.trans ((View.read_apply _ _).symm.trans h)
  have e2 : (stg b).view.read (Elt F) gb y = b.view.read (Elt F) gb (ix1 (⟨(y 0).val, by omega⟩ : Fin 25600)) :=
    congrArg (b.view.read (Elt F) gb) (stg_emb y (by omega))
  have e3 : a.view.read (Elt F) ga (ix2 (0 : Fin 8) (⟨(y 0).val, hy⟩ : Fin 3200))
      = (inM L n).view.read (Elt F) fx (ix2 (0 : Fin 1) (⟨(y 0).val, hy⟩ : Fin 3200)) :=
    (congrArg (a.view.read (Elt F) ga) (row_emb ⟨(y 0).val, hy⟩).symm).trans (hr _)
  have e4 : (inM L n).view.read (Elt F) fx (ix2 (0 : Fin 1) (⟨(y 0).val, hy⟩ : Fin 3200))
      = fx (ix2 (16 : Fin 22) (⟨pos L n + (y 0).val, hp⟩ : Fin 1600000)) :=
    ((View.read_apply _ _).trans (cast_eq _ _)).trans (congrArg fx (in_emb L n ⟨(y 0).val, hy⟩ hp))
  have e5 : Cert.Spec.row 16 fx ((outM L n).view.emb y) = fx (ix2 (16 : Fin 22) (⟨pos L n + (y 0).val, hp⟩ : Fin 1600000)) :=
    (congrArg (Cert.Spec.row 16 fx) (out_emb L n y hp)).trans (Cert.Spec.row_apply 16 fx _)
  exact e1.trans ((hw y).trans (e2.trans ((hl _ hy (by omega)).trans (e3.trans (e4.trans e5.symm)))))

end Cert.Proof.TileVal16

end
-- ==== Proof.TileK16.lean ====
/-
  One vector subcore's task of copy kernel 16 (counting from 0), run symbolically: the two fetch slots and two write-out slots
  between trips of the main loop (what each transfer in flight will hand back, and what the staging buffers hold), the
  invariant of the main loop and of the two lane-copy loops, and the task's run — from the tile's pieces of row 16 of
  the transposed argument and of the result to the same pieces with the result holding the row's elements.
-/
import proofs.«206869_g37898791420194_cont_8to1_b_558_20_alg».proof.Proof.TileK16Defs
import proofs.«206869_g37898791420194_cont_8to1_b_558_20_alg».proof.Proof.TileVal16
noncomputable section

namespace Cert.Proof.TileK16

open Cert.KernelIdeal Cert.KernelIdeal.Gen Cert.Proof.TileVal16
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 22) (Elt F) ℕ UU ℕ
local notation "xtW" => (Memref.whole Cert.KernelIdeal.main_v0_scv : Memref Cert.KernelIdeal.sig Kind.scVector Space.hbm Cert.KernelIdeal.S22x1600000 EltTy.f32)
local notation "oW" => (Memref.whole Cert.KernelIdeal.main_v17_scv : Memref Cert.KernelIdeal.sig Kind.scVector Space.hbm Cert.KernelIdeal.S1600000 EltTy.f32)
local notation "a4" => (Memref.whole Cert.KernelIdeal.cc16_scratch0 : Memref Cert.KernelIdeal.sig Kind.scVector Space.vmem Cert.KernelIdeal.S8x3200 EltTy.f32)
local notation "a5" => (Memref.whole Cert.KernelIdeal.cc16_scratch1 : Memref Cert.KernelIdeal.sig Kind.scVector Space.vmem Cert.KernelIdeal.S8x3200 EltTy.f32)
local notation "a6" => (Memref.whole Cert.KernelIdeal.cc16_scratch2 : Memref Cert.KernelIdeal.sig Kind.scVector Space.vmem Cert.KernelIdeal.S25600 EltTy.f32)
local notation "a7" => (Memref.whole Cert.KernelIdeal.cc16_scratch3 : Memref Cert.KernelIdeal.sig Kind.scVector Space.vmem Cert.KernelIdeal.S25600 EltTy.f32)

variable [FloatOps F]

section Tile

variable (d : Dev nD) (L : grid16.Coords)
variable (O : CellTallies nD τ sig (HIx 22)) (W : Waits sig (HIx 22))
variable (fx : Buf (Elt F) ((xtW).view.loc (thr d L)))

/-- Piece `n` of the result at its final contents. -/
abbrev oqPiece (n : ℕ) : sProp 𝕄 := (outM L n).view.loc (thr d L) ↦[(outM L n).view.set]{fullShare} (Cert.Spec.row 16 fx)
theorem oQ_pos {n : ℕ} (v : valid L n) : oQ d L fx n = oqPiece d L fx n := if_pos v
theorem oQ_neg {n : ℕ} (v : ¬ valid L n) : oQ d L fx n = iprop(emp) := if_neg v

/-- A fetch slot, remembering that the staging row it will hand back holds the piece. -/
def inSlotV (a : Memref sig .scVector .vmem S8x3200 .f32) (sm : DmaSem sig) (n : ℕ) : sProp 𝕄 :=
  if valid L n then
    iprop(∃ g, ⌜InRow d L fx a g n⌝ ∗ Transfers.Flight countersEmb (thr d L) (SemLoc.dma sm) (default : HIx 22) NN
      iprop((a.view.loc (thr d L) ↦{fullShare} g) ∗ xtPiece d L fx n))
  else iprop((∃ g, a.view.loc (thr d L) ↦{fullShare} g) ∗ semVal (thr d L, SemLoc.dma sm) 0)

/-- A write-out slot: the piece in flight will come back holding the row's elements. -/
def outSlotV (a : Memref sig .scVector .vmem S25600 .f32) (sm : DmaSem sig) (m : ℕ) : sProp 𝕄 :=
  if 2 ≤ m ∧ valid L (m - 2) then
    iprop(∃ g, Transfers.Flight countersEmb (thr d L) (SemLoc.dma sm) (default : HIx 22) NN
        iprop(oqPiece d L fx (m - 2) ∗ ((stg a).view.loc (thr d L) ↦[(stg a).view.set]{fullShare} g))
      ∗ (a.view.loc (thr d L) ↦[Finset.univ \ (stg a).view.set]{fullShare} g))
  else iprop((∃ g, a.view.loc (thr d L) ↦{fullShare} g) ∗ semVal (thr d L, SemLoc.dma sm) 0)

theorem inSlotV_pos {a : Memref sig .scVector .vmem S8x3200 .f32} {sm : DmaSem sig} {n : ℕ} (v : valid L n) :
    inSlotV d L fx a sm n = iprop(∃ g, ⌜InRow d L fx a g n⌝ ∗ Transfers.Flight countersEmb (thr d L) (SemLoc.dma sm) (default : HIx 22) NN
      iprop((a.view.loc (thr d L) ↦{fullShare} g) ∗ xtPiece d L fx n)) := by unfold inSlotV; rw [if_pos v]
theorem inSlotV_neg {a : Memref sig .scVector .vmem S8x3200 .f32} {sm : DmaSem sig} {n : ℕ} (v : ¬ valid L n) :
    inSlotV d L fx a sm n = iprop((∃ g, a.view.loc (thr d L) ↦{fullShare} g) ∗ semVal (thr d L, SemLoc.dma sm) 0) := by
  unfold inSlotV; rw [if_neg v]
theorem outSlotV_pos {a : Memref sig .scVector .vmem S25600 .f32} {sm : DmaSem sig} {m : ℕ} (h : 2 ≤ m ∧ valid L (m - 2)) :
    outSlotV d L fx a sm m = iprop(∃ g, Transfers.Flight countersEmb (thr d L) (SemLoc.dma sm) (default : HIx 22) NN
        iprop(oqPiece d L fx (m - 2) ∗ ((stg a).view.loc (thr d L) ↦[(stg a).view.set]{fullShare} g))
      ∗ (a.view.loc (thr d L) ↦[Finset.univ \ (stg a).view.set]{fullShare} g)) := by unfold outSlotV; rw [if_pos h]
theorem outSlotV_neg {a : Memref sig .scVector .vmem S25600 .f32} {sm : DmaSem sig} {m : ℕ} (h : ¬ (2 ≤ m ∧ valid L (m - 2))) :
    outSlotV d L fx a sm m = iprop((∃ g, a.view.loc (thr d L) ↦{fullShare} g) ∗ semVal (thr d L, SemLoc.dma sm) 0) := by
  unfold outSlotV; rw [if_neg h]

/-- A fetch just issued: the staging row will hold what the transfer reads, which is the piece. -/
theorem fl_inV {off : Fin 2 → ℕ} {n : ℕ} (h : off = ![16, pos L n]) (p : ∀ a, off a + S1x3200.size a ≤ S22x1600000.size a) (v : valid L n)
    (a : Memref sig .scVector .vmem S8x3200 .f32) (sm : DmaSem sig) :
    (iprop(∃ (gold : Buf (Elt F) (a.view.loc (thr d L))) (w : S1x3200.Idx → Elt F .f32),
        ⌜∀ y, w y = ((xtW).slice (Rect.unit (s := S22x1600000) off S1x3200.size p) (fun _ => rfl)).view.read (Elt F) fx y⌝
        ∗ Transfers.Flight countersEmb (thr d L) (SemLoc.dma sm) (default : HIx 22) NN
          iprop((a.view.loc (thr d L) ↦{fullShare} a.view.writes (Elt F) gold [⟨rowRect, w⟩])
            ∗ (((xtW).slice (Rect.unit (s := S22x1600000) off S1x3200.size p) (fun _ => rfl)).view.loc (thr d L)
                ↦[((xtW).slice (Rect.unit (s := S22x1600000) off S1x3200.size p) (fun _ => rfl)).view.set]{fullShare} fx))) : sProp 𝕄)
      ⊢ inSlotV d L fx a sm n := by
  subst h
  rw [inSlotV_pos d L fx v]
  iintro ⟨%gold, %w, %hw, H⟩
  iexists _
  isplitr
  · ipureintro; exact inRow_fetch d L fx a gold w n hw
  · iexact H

set_option maxHeartbeats 4000000 in
/-- A write-out just issued from a flat staging buffer whose first 3200 elements are the staging row, itself piece
    `n` of the argument row: the piece of the result will hold the row's elements. -/
theorem fl_outV {off : Fin 1 → ℕ} {n : ℕ} (h : off = ![pos L n]) (p : ∀ a, off a + S3200.size a ≤ S1600000.size a) (v : valid L n)
    (ar : Memref sig .scVector .vmem S8x3200 .f32) (a : Memref sig .scVector .vmem S25600 .f32) (sm : DmaSem sig)
    (f0 : Buf (Elt F) ((oW).view.loc (thr d L))) (ga : Buf (Elt F) (ar.view.loc (thr d L))) (gb : Buf (Elt F) (a.view.loc (thr d L)))
    (hl : Lanes d L ar a ga gb 200) (hr : InRow d L fx ar ga n) :
    (iprop(∃ (w : S3200.Idx → Elt F .f32),
        ⌜∀ y, w y = (stg a).view.read (Elt F) gb y⌝
        ∗ Transfers.Flight countersEmb (thr d L) (SemLoc.dma sm) (default : HIx 22) NN
          iprop((((oW).slice (Rect.unit (s := S1600000) off S3200.size p) (fun _ => rfl)).view.loc (thr d L)
                ↦[((oW).slice (Rect.unit (s := S1600000) off S3200.size p) (fun _ => rfl)).view.set]{fullShare}
                  (((oW).slice (Rect.unit (s := S1600000) off S3200.size p) (fun _ => rfl)).view.writes (Elt F) f0 [⟨Rect.whole _, w⟩]))
            ∗ ((stg a).view.loc (thr d L) ↦[(stg a).view.set]{fullShare} gb))
        ∗ (a.view.loc (thr d L) ↦[Finset.univ \ (stg a).view.set]{fullShare} gb)) : sProp 𝕄)
      ⊢ outSlotV d L fx a sm (n + 2) := by
  subst h
  rw [outSlotV_pos d L fx (m := n + 2) ⟨by omega, by simpa using v⟩]
  iintro ⟨%w, %hw, H, R⟩
  have hD : (iprop(((outM L n).view.loc (thr d L) ↦[(outM L n).view.set]{fullShare} ((outM L n).view.writes (Elt F) f0 [⟨Rect.whole _, w⟩]))
          ∗ ((stg a).view.loc (thr d L) ↦[(stg a).view.set]{fullShare} gb)) : sProp 𝕄)
      ⊢ iprop(oqPiece d L fx (n + 2 - 2) ∗ ((stg a).view.loc (thr d L) ↦[(stg a).view.set]{fullShare} gb)) := by
    rw [Nat.add_sub_cancel]
    have e : (((outM L n).view.loc (thr d L) ↦[(outM L n).view.set]{fullShare} ((outM L n).view.writes (Elt F) f0 [⟨Rect.whole _, w⟩])) : sProp 𝕄)
        = oqPiece d L fx n := pointsTo_congr (out_written d L fx ar a n ga gb f0 w hw hl hr v)
    iintro ⟨H1, H2⟩
    isplitl [H1]
    · iapply (Entails.of_eq e); iexact H1
    · iexact H2
  iexists gb
  isplitl [H]
  · iapply (Transfers.Flight_mono countersEmb (thr d L) hD); iexact H
  · iexact R

/-- The result pieces outside the slots before trip `t`: those already written hold the row, the others some contents. -/
def oMix (t n : ℕ) : sProp 𝕄 := if n + 2 < 2 * t then oQ d L fx n else oP (F := F) d L n
theorem oMix_lt {t n : ℕ} (h : n + 2 < 2 * t) : oMix d L fx t n = oQ d L fx n := if_pos h
theorem oMix_ge {t n : ℕ} (h : ¬ n + 2 < 2 * t) : oMix d L fx t n = oP (F := F) d L n := if_neg h
theorem oMix_core (k : ℕ) : bigSep (oCore k) (oMix d L fx k) = bigSep (oCore k) (oMix d L fx (k + 1)) :=
  bigSep_congr fun n hn => by
    have hn' : n + 2 ≠ 2 * k ∧ n + 2 ≠ 2 * k + 1 ∧ n ≠ 2 * k ∧ n ≠ 2 * k + 1 := by
      simp only [oCore, Finset.mem_filter, Finset.mem_range] at hn; exact hn.2
    by_cases h : n + 2 < 2 * k
    · rw [oMix_lt d L fx h, oMix_lt d L fx (by omega)]
    · rw [oMix_ge d L fx h, oMix_ge d L fx (by omega)]
theorem oMix_zero : bigSep (oSet 0) (oMix d L fx 0) = bigSep (Finset.range 18) (oP (F := F) d L) := by
  rw [oSet_zero]; exact bigSep_congr fun n _ => oMix_ge d L fx (by omega)
theorem oMix_end : bigSep (oSet 8) (oMix d L fx 8) = bigSep (oSet 8) (oQ d L fx) :=
  bigSep_congr fun n hn => by
    have hn' : n < 18 ∧ n + 2 ≠ 16 ∧ n + 2 ≠ 17 := by simpa only [oSet, Finset.mem_filter, Finset.mem_range] using hn
    by_cases h : n + 2 < 2 * 8
    · exact oMix_lt d L fx h
    · rw [oMix_ge d L fx h, oP_neg (F := F) d L (by unfold valid; omega), oQ_neg d L fx (by unfold valid; omega)]

/-- The lane-copy loops: before trip `j` the first 16·j elements of the flat staging buffer are the staging row's. -/
def laneV0 (g4 : Buf (Elt F) ((a4).view.loc (thr d L))) (j : ℕ) (_ : PUnit) : sProp 𝕄 :=
  iprop(((a4).view.loc (thr d L) ↦{fullShare} g4) ∗ (∃ g, ((a6).view.loc (thr d L) ↦{fullShare} g) ∗ ⌜Lanes d L a4 a6 g4 g j⌝))
def laneV1 (g5 : Buf (Elt F) ((a5).view.loc (thr d L))) (j : ℕ) (_ : PUnit) : sProp 𝕄 :=
  iprop(((a5).view.loc (thr d L) ↦{fullShare} g5) ∗ (∃ g, ((a7).view.loc (thr d L) ↦{fullShare} g) ∗ ⌜Lanes d L a5 a7 g5 g j⌝))

def invV (t : ℕ) (_ : PUnit) : sProp 𝕄 :=
  iprop(Transfers.MayWaits (thr d L) (none : HIx 22) O
    ∗ (∃ W', ⌜∀ p ∈ W', p ∈ W ∨ p.2 = none⌝ ∗ owes (thr d L) O W')
    ∗ bigSep (xSet t) (xP d L fx) ∗ bigSep (oSet t) (oMix d L fx t)
    ∗ inSlotV d L fx a4 cc16_scratch4.sem (2 * t) ∗ outSlotV d L fx a6 cc16_scratch6.sem (2 * t)
    ∗ inSlotV d L fx a5 cc16_scratch5.sem (2 * t + 1) ∗ outSlotV d L fx a7 cc16_scratch7.sem (2 * t + 1))

/-- After the last trip nothing of the argument row is in a slot: the tile holds all its pieces. -/
theorem xRange_end : bigSep (xSet 8) (xP d L fx) ⊢ bigSep (Finset.range 18) (xP d L fx) := by
  rw [two_out (s := Finset.range 18) (a := 16) (b := 17) (by decide) (by decide) (by decide),
    show ((Finset.range 18).erase 16).erase 17 = xSet 8 by decide]
  iintro H
  isplitr; · iapply (Entails.of_eq (xP_neg d L fx (n := 16) (by unfold valid; omega)).symm); iempintro
  isplitr; · iapply (Entails.of_eq (xP_neg d L fx (n := 17) (by unfold valid; omega)).symm); iempintro
  iexact H
omit [FloatOps F] in
theorem oRange_end (Φ : ℕ → sProp 𝕄) : bigSep (Finset.range 18) Φ = iprop(Φ 14 ∗ Φ 15 ∗ bigSep (oSet 8) Φ) := by
  rw [two_out (s := Finset.range 18) (a := 14) (b := 15) (by decide) (by decide) (by decide),
    show ((Finset.range 18).erase 14).erase 15 = oSet 8 by decide]

/-- What the run starts from and ends with, beside an untouched rest `R`. -/
def runPre (R : sProp 𝕄) : sProp 𝕄 :=
    iprop(Transfers.MayWaits (thr d L) (none : HIx 22) O ∗ owes (thr d L) O W
        ∗ bigSep (Finset.range 18) (xP d L fx) ∗ bigSep (Finset.range 18) (oP (F := F) d L)
        ∗ (∃ g, (a4).view.loc (thr d L) ↦{fullShare} g) ∗ (∃ g, (a5).view.loc (thr d L) ↦{fullShare} g)
        ∗ (∃ g, (a6).view.loc (thr d L) ↦{fullShare} g) ∗ (∃ g, (a7).view.loc (thr d L) ↦{fullShare} g)
        ∗ semVal (thr d L, SemLoc.dma cc16_scratch4.sem) 0 ∗ semVal (thr d L, SemLoc.dma cc16_scratch5.sem) 0
        ∗ semVal (thr d L, SemLoc.dma cc16_scratch6.sem) 0 ∗ semVal (thr d L, SemLoc.dma cc16_scratch7.sem) 0 ∗ R)
def runPost (R : sProp 𝕄) : sProp 𝕄 :=
    iprop(bigSep (Finset.range 18) (xP d L fx) ∗ bigSep (Finset.range 18) (oQ d L fx)
            ∗ (∃ g, (a4).view.loc (thr d L) ↦{fullShare} g) ∗ (∃ g, (a5).view.loc (thr d L) ↦{fullShare} g)
            ∗ (∃ g, (a6).view.loc (thr d L) ↦{fullShare} g) ∗ (∃ g, (a7).view.loc (thr d L) ↦{fullShare} g)
            ∗ semVal (thr d L, SemLoc.dma cc16_scratch4.sem) 0 ∗ semVal (thr d L, SemLoc.dma cc16_scratch5.sem) 0
            ∗ semVal (thr d L, SemLoc.dma cc16_scratch6.sem) 0 ∗ semVal (thr d L, SemLoc.dma cc16_scratch7.sem) 0
            ∗ (∃ W', ⌜∀ p ∈ W', p ∈ W ∨ p.2 = none⌝ ∗ owes (thr d L) O W') ∗ R)

set_option maxHeartbeats 16000000 in
/-- The task's run: from its pieces of the argument row and of the result, the four staging buffers and the four
    semaphores at zero, to the same with every piece of the result holding the row's elements. -/
theorem tile_run (R : sProp 𝕄) :
    runPre d L O W fx R
      ⊢ wp frame (wpE (defs₀ (F := F)) 𝒱₀ (thr d L) none) Set.univ
          (cc16_sc_group L xtW (Memref.isWhole_whole _) oW (Memref.isWhole_whole _) a4 (Memref.isWhole_whole _) a5 (Memref.isWhole_whole _)
            a6 (Memref.isWhole_whole _) a7 (Memref.isWhole_whole _) cc16_scratch4 cc16_scratch5 cc16_scratch6 cc16_scratch7)
          fun _ => runPost d L O W fx R := by
  unfold runPre runPost
  have v0 : valid L 0 := Or.inl (by omega)
  have v1 : valid L 1 := Or.inl (by omega)
  have k16_h7 : k16_cond7 L = 1#1 := cond7_iff L
  iintro ⟨#Hmw, HO, HX, HOut, ⟨%g4, H4⟩, ⟨%g5, H5⟩, ⟨%g6, H6⟩, ⟨%g7, H7⟩, Hs8, Hs9, Hs10, Hs11, HR⟩
  ihave HX := (Entails.of_eq (xRange_split d L fx v0 v1)) $$ HX
  icases HX with ⟨X0, X1, HX⟩
  ihave X0 := (Entails.of_eq (in_congr d L (off_in0 L v0).symm (in_inb L _) (k16_off1_inb L 0) fx)) $$ X0
  ihave X1 := (Entails.of_eq (in_congr d L (off_in1 L v1).symm (in_inb L _) (k16_off1_inb L 1) fx)) $$ X1
  sl_unfold [cc16_sc_group]
  sl_exec
  ihave S8 := (fl_inV d L fx (off_in0 L v0) (k16_off1_inb L 0) v0 a4 cc16_scratch4.sem) $$ [Hs8]
  · iexists _, _
    isplitr
    rotate_left
    · iexact Hs8
    ipureintro; intro y; rfl
  ihave S9 := (fl_inV d L fx (off_in1 L v1) (k16_off1_inb L 1) v1 a5 cc16_scratch5.sem) $$ [Hs9]
  · iexists _, _
    isplitr
    rotate_left
    · iexact Hs9
    ipureintro; intro y; rfl
  sl_for (invV d L O W fx) $$ [HO HX HOut S8 S9 H6 H7 Hs10 Hs11]
  case region =>
    intro (k : Fin k16_t1_loop.trips) acc
    have hk : k.val < 8 := Nat.lt_of_lt_of_eq k.isLt trips1
    unfold invV
    iintro ⟨#Hmw, ⟨%W', %hW', HO⟩, HX, HOut, S8, S10, S9, S11⟩
    by_cases hk1 : 1 ≤ k.val
    · by_cases v3 : valid L (2 * k.val + 3)
      · -- the generic trip: both drains, both pieces worked, both next fetches issued
        have hk6 : k.val ≤ 6 := by unfold valid at v3; omega
        have k16_h1 : k16_cond1 k = 1#1 := (cond1_iff k).mpr (by omega)
        have k16_h2 : k16_cond2 L k = 1#1 := cond2_iff L k
        have k16_h3 : k16_cond3 L k = 1#1 := (cond3_iff L k).mpr (by omega)
        have k16_h4 : k16_cond4 k = 1#1 := (cond4_iff k).mpr (by omega)
        have k16_h5 : k16_cond5 L k = 1#1 := (cond5_iff L k).mpr (by first | (unfold valid big at *; omega) | (unfold big at *; omega) | omega)
        have k16_h6 : k16_cond6 L k = 1#1 := (cond6_iff L k).mpr (by first | (unfold valid big at *; omega) | (unfold big at *; omega) | omega)
        have v0 : valid L (2 * k.val) := by unfold valid big at *; omega
        have v1 : valid L (2 * k.val + 1) := by unfold valid big at *; omega
        have v2 : valid L (2 * k.val + 2) := by unfold valid big at *; omega
        have v3' : valid L (2 * k.val + 3) := by unfold valid big at *; omega
        have hm0 : 2 ≤ 2 * k.val ∧ valid L (2 * k.val - 2) := ⟨by omega, by unfold valid big at *; omega⟩
        have hm1 : 2 ≤ 2 * k.val + 1 ∧ valid L (2 * k.val + 1 - 2) := ⟨by omega, by unfold valid big at *; omega⟩
        ihave S8 := (Entails.of_eq (inSlotV_pos d L fx v0)) $$ S8
        icases S8 with ⟨%g4, %hin4, F8⟩
        ihave S9 := (Entails.of_eq (inSlotV_pos d L fx v1)) $$ S9
        icases S9 with ⟨%g5, %hin5, F9⟩
        ihave S10 := (Entails.of_eq (outSlotV_pos d L fx hm0)) $$ S10
        icases S10 with ⟨%g6, F10, R6⟩
        ihave S11 := (Entails.of_eq (outSlotV_pos d L fx hm1)) $$ S11
        icases S11 with ⟨%g7, F11, R7⟩
        ihave HX := (Entails.of_eq (xSet_out (xP d L fx) k.val hk)) $$ HX
        icases HX with ⟨X2, X3, HX⟩
        ihave X2 := (Entails.of_eq (xP_pos d L fx v2)) $$ X2
        ihave X2 := (Entails.of_eq (in_congr d L (off_6 L k v2).symm (in_inb L _) (k16_off6_inb L k k16_h3) fx)) $$ X2
        ihave X3 := (Entails.of_eq (xP_pos d L fx v3')) $$ X3
        ihave X3 := (Entails.of_eq (in_congr d L (off_11 L k v3').symm (in_inb L _) (k16_off11_inb L k k16_h6) fx)) $$ X3
        ihave HOut := (Entails.of_eq (oSet_out (oMix d L fx k.val) k.val hk)) $$ HOut
        icases HOut with ⟨Y0, Y1, HOut⟩
        ihave Y0 := (Entails.of_eq ((oMix_ge d L fx (t := k.val) (n := 2 * k.val) (by omega)).trans (oP_pos (F := F) d L v0))) $$ Y0
        icases Y0 with ⟨%f0, Y0⟩
        ihave Y0 := (Entails.of_eq (out_congr d L (off_5 L k v0).symm (out_inb L _) (k16_off5_inb L k k16_h2) f0)) $$ Y0
        ihave Y1 := (Entails.of_eq ((oMix_ge d L fx (t := k.val) (n := 2 * k.val + 1) (by omega)).trans (oP_pos (F := F) d L v1))) $$ Y1
        icases Y1 with ⟨%f1, Y1⟩
        ihave Y1 := (Entails.of_eq (out_congr d L (off_10 L k v1).symm (out_inb L _) (k16_off10_inb L k k16_h5) f1)) $$ Y1
        sl_exec
        sl_for (laneV0 d L g4) $$ [F8_dst R6]
        case region =>
          intro (j : Fin k16_t2_loop.trips) _
          unfold laneV0
          iintro ⟨HA, %g, HB, %hl⟩
          sl_exec
          sl_step
          isplitl [HA]; · iexact HA
          iexists _; isplitl [HB]; · iexact HB
          ipureintro; exact lanes_step d L a4 a6 g4 g j _ _ hl
        · unfold laneV0
          isplitl [F8_dst]; · iexact F8_dst
          iexists _; isplitl [R6]; · iexact R6
          ipureintro; exact lanes_zero d L a4 a6 g4 _
        iintro %_ HI
        unfold laneV0
        icases HI with ⟨H4, %g6', H6, %hl6⟩
        have hl6 : Lanes d L a4 a6 g4 g6' 200 := Eq.mp (congrArg (Lanes d L a4 a6 g4 g6') trips2) hl6
        sl_exec
        sl_for (laneV1 d L g5) $$ [F9_dst R7]
        case region =>
          intro (j : Fin k16_t3_loop.trips) _
          unfold laneV1
          iintro ⟨HA, %g, HB, %hl⟩
          sl_exec
          sl_step
          isplitl [HA]; · iexact HA
          iexists _; isplitl [HB]; · iexact HB
          ipureintro; exact lanes_step' d L a5 a7 g5 g j _ _ hl
        · unfold laneV1
          isplitl [F9_dst]; · iexact F9_dst
          iexists _; isplitl [R7]; · iexact R7
          ipureintro; exact lanes_zero d L a5 a7 g5 _
        iintro %_ HI
        unfold laneV1
        icases HI with ⟨H5, %g7', H7, %hl7⟩
        have hl7 : Lanes d L a5 a7 g5 g7' 200 := Eq.mp (congrArg (Lanes d L a5 a7 g5 g7') trips3) hl7
        sl_exec
        sl_step
        isplitr; · iexact Hmw
        isplitl [HO]
        · iexists _; isplitr
          rotate_left
          · iexact HO
          ipureintro; intro p hp
          rcases Finset.mem_insert.mp hp with rfl | hp
          · exact .inr rfl
          rcases Finset.mem_insert.mp hp with rfl | hp
          · exact .inr rfl
          rcases Finset.mem_insert.mp hp with rfl | hp
          · exact .inr rfl
          rcases Finset.mem_insert.mp hp with rfl | hp
          · exact .inr rfl
          exact hW' p hp
        isplitl [HX F8_src F9_src]
        · iapply (Entails.of_eq (xSet_in (xP d L fx) k.val hk).symm)
          isplitl [F8_src]; · iapply (Entails.of_eq (xP_pos d L fx v0).symm); iexact F8_src
          isplitl [F9_src]; · iapply (Entails.of_eq (xP_pos d L fx v1).symm); iexact F9_src
          iexact HX
        isplitl [HOut F10_dst F11_dst]
        · iapply (Entails.of_eq (oSet_in (oMix d L fx (k.val + 1)) k.val hk (by omega)).symm)
          isplitl [F10_dst]; · iapply (Entails.of_eq ((oMix_lt d L fx (t := k.val + 1) (n := 2 * k.val - 2) (by omega)).trans (oQ_pos d L fx hm0.2)).symm); iexact F10_dst
          isplitl [F11_dst]
          · iapply (Entails.of_eq ((oMix_lt d L fx (t := k.val + 1) (n := 2 * k.val - 1) (by omega)).trans (oQ_pos d L fx (n := 2 * k.val - 1) (by have := hm1.2; rwa [show 2 * k.val + 1 - 2 = 2 * k.val - 1 by omega] at this))).symm)
            iapply (Entails.of_eq (congrArg (oqPiece d L fx) (show 2 * k.val + 1 - 2 = 2 * k.val - 1 by omega))); iexact F11_dst
          iapply (Entails.of_eq (oMix_core d L fx k.val)); iexact HOut
        isplitl [F8]
        · iapply (Entails.of_eq (congrArg (inSlotV d L fx a4 cc16_scratch4.sem) (show 2 * k.val + 2 = 2 * (k.val + 1) by ring)))
          iapply (fl_inV d L fx (off_6 L k v2) (k16_off6_inb L k k16_h3) v2 a4 cc16_scratch4.sem); iexists _, _
          isplitr
          rotate_left
          · iexact F8
          ipureintro; intro y; rfl
        isplitl [F10 H6]
        · iapply (Entails.of_eq (congrArg (outSlotV d L fx a6 cc16_scratch6.sem) (show 2 * k.val + 2 = 2 * (k.val + 1) by ring)))
          iapply (fl_outV d L fx (off_5 L k v0) (k16_off5_inb L k k16_h2) v0 a4 a6 cc16_scratch6.sem f0 g4 g6' hl6 hin4); iexists _
          isplitr
          rotate_left
          · isplitl [F10]; · iexact F10
            iexact H6
          ipureintro; intro y; rfl
        isplitl [F9]
        · iapply (Entails.of_eq (congrArg (inSlotV d L fx a5 cc16_scratch5.sem) (show 2 * k.val + 3 = 2 * (k.val + 1) + 1 by ring)))
          iapply (fl_inV d L fx (off_11 L k v3') (k16_off11_inb L k k16_h6) v3' a5 cc16_scratch5.sem); iexists _, _
          isplitr
          rotate_left
          · iexact F9
          ipureintro; intro y; rfl
        · iapply (Entails.of_eq (congrArg (outSlotV d L fx a7 cc16_scratch7.sem) (show 2 * k.val + 1 + 2 = 2 * (k.val + 1) + 1 by ring)))
          iapply (fl_outV d L fx (off_10 L k v1) (k16_off10_inb L k k16_h5) v1 a5 a7 cc16_scratch7.sem f1 g5 g7' hl7 hin5); iexists _
          isplitr
          rotate_left
          · isplitl [F11]; · iexact F11
            iexact H7
          ipureintro; intro y; rfl
      · by_cases h6 : k.val = 6
        · have hb : ¬ big L := fun hb => v3 (Or.inr ⟨by omega, hb⟩)
          -- trip 6 of a tile with fifteen pieces: no sixteenth piece to fetch
          have k16_h1 : k16_cond1 k = 1#1 := (cond1_iff k).mpr (by omega)
          have k16_h2 : k16_cond2 L k = 1#1 := cond2_iff L k
          have k16_h3 : k16_cond3 L k = 1#1 := (cond3_iff L k).mpr (by omega)
          have k16_h4 : k16_cond4 k = 1#1 := (cond4_iff k).mpr (by omega)
          have k16_h5 : k16_cond5 L k = 1#1 := (cond5_iff L k).mpr (by first | (unfold valid big at *; omega) | (unfold big at *; omega) | omega)
          have k16_h6 : ¬ k16_cond6 L k = 1#1 := fun h => absurd ((cond6_iff L k).mp h) (by first | (unfold valid big at *; omega) | (unfold big at *; omega) | omega)
          have v0 : valid L (2 * k.val) := by unfold valid big at *; omega
          have v1 : valid L (2 * k.val + 1) := by unfold valid big at *; omega
          have v2 : valid L (2 * k.val + 2) := by unfold valid big at *; omega
          have v3' : ¬ valid L (2 * k.val + 3) := by unfold valid big at *; omega
          have hm0 : 2 ≤ 2 * k.val ∧ valid L (2 * k.val - 2) := ⟨by omega, by unfold valid big at *; omega⟩
          have hm1 : 2 ≤ 2 * k.val + 1 ∧ valid L (2 * k.val + 1 - 2) := ⟨by omega, by unfold valid big at *; omega⟩
          ihave S8 := (Entails.of_eq (inSlotV_pos d L fx v0)) $$ S8
          icases S8 with ⟨%g4, %hin4, F8⟩
          ihave S9 := (Entails.of_eq (inSlotV_pos d L fx v1)) $$ S9
          icases S9 with ⟨%g5, %hin5, F9⟩
          ihave S10 := (Entails.of_eq (outSlotV_pos d L fx hm0)) $$ S10
          icases S10 with ⟨%g6, F10, R6⟩
          ihave S11 := (Entails.of_eq (outSlotV_pos d L fx hm1)) $$ S11
          icases S11 with ⟨%g7, F11, R7⟩
          ihave HX := (Entails.of_eq (xSet_out (xP d L fx) k.val hk)) $$ HX
          icases HX with ⟨X2, -, HX⟩
          ihave X2 := (Entails.of_eq (xP_pos d L fx v2)) $$ X2
          ihave X2 := (Entails.of_eq (in_congr d L (off_6 L k v2).symm (in_inb L _) (k16_off6_inb L k k16_h3) fx)) $$ X2
          ihave HOut := (Entails.of_eq (oSet_out (oMix d L fx k.val) k.val hk)) $$ HOut
          icases HOut with ⟨Y0, Y1, HOut⟩
          ihave Y0 := (Entails.of_eq ((oMix_ge d L fx (t := k.val) (n := 2 * k.val) (by omega)).trans (oP_pos (F := F) d L v0))) $$ Y0
          icases Y0 with ⟨%f0, Y0⟩
          ihave Y0 := (Entails.of_eq (out_congr d L (off_5 L k v0).symm (out_inb L _) (k16_off5_inb L k k16_h2) f0)) $$ Y0
          ihave Y1 := (Entails.of_eq ((oMix_ge d L fx (t := k.val) (n := 2 * k.val + 1) (by omega)).trans (oP_pos (F := F) d L v1))) $$ Y1
          icases Y1 with ⟨%f1, Y1⟩
          ihave Y1 := (Entails.of_eq (out_congr d L (off_10 L k v1).symm (out_inb L _) (k16_off10_inb L k k16_h5) f1)) $$ Y1
          sl_exec
          sl_for (laneV0 d L g4) $$ [F8_dst R6]
          case region =>
            intro (j : Fin k16_t2_loop.trips) _
            unfold laneV0
            iintro ⟨HA, %g, HB, %hl⟩
            sl_exec
            sl_step
            isplitl [HA]; · iexact HA
            iexists _; isplitl [HB]; · iexact HB
            ipureintro; exact lanes_step d L a4 a6 g4 g j _ _ hl
          · unfold laneV0
            isplitl [F8_dst]; · iexact F8_dst
            iexists _; isplitl [R6]; · iexact R6
            ipureintro; exact lanes_zero d L a4 a6 g4 _
          iintro %_ HI
          unfold laneV0
          icases HI with ⟨H4, %g6', H6, %hl6⟩
          have hl6 : Lanes d L a4 a6 g4 g6' 200 := Eq.mp (congrArg (Lanes d L a4 a6 g4 g6') trips2) hl6
          sl_exec
          sl_for (laneV1 d L g5) $$ [F9_dst R7]
          case region =>
            intro (j : Fin k16_t3_loop.trips) _
            unfold laneV1
            iintro ⟨HA, %g, HB, %hl⟩
            sl_exec
            sl_step
            isplitl [HA]; · iexact HA
            iexists _; isplitl [HB]; · iexact HB
            ipureintro; exact lanes_step' d L a5 a7 g5 g j _ _ hl
          · unfold laneV1
            isplitl [F9_dst]; · iexact F9_dst
            iexists _; isplitl [R7]; · iexact R7
            ipureintro; exact lanes_zero d L a5 a7 g5 _
          iintro %_ HI
          unfold laneV1
          icases HI with ⟨H5, %g7', H7, %hl7⟩
          have hl7 : Lanes d L a5 a7 g5 g7' 200 := Eq.mp (congrArg (Lanes d L a5 a7 g5 g7') trips3) hl7
          sl_exec
          sl_step
          isplitr; · iexact Hmw
          isplitl [HO]
          · iexists _; isplitr
            rotate_left
            · iexact HO
            ipureintro; intro p hp
            rcases Finset.mem_insert.mp hp with rfl | hp
            · exact .inr rfl
            rcases Finset.mem_insert.mp hp with rfl | hp
            · exact .inr rfl
            rcases Finset.mem_insert.mp hp with rfl | hp
            · exact .inr rfl
            rcases Finset.mem_insert.mp hp with rfl | hp
            · exact .inr rfl
            exact hW' p hp
          isplitl [HX F8_src F9_src]
          · iapply (Entails.of_eq (xSet_in (xP d L fx) k.val hk).symm)
            isplitl [F8_src]; · iapply (Entails.of_eq (xP_pos d L fx v0).symm); iexact F8_src
            isplitl [F9_src]; · iapply (Entails.of_eq (xP_pos d L fx v1).symm); iexact F9_src
            iexact HX
          isplitl [HOut F10_dst F11_dst]
          · iapply (Entails.of_eq (oSet_in (oMix d L fx (k.val + 1)) k.val hk (by omega)).symm)
            isplitl [F10_dst]; · iapply (Entails.of_eq ((oMix_lt d L fx (t := k.val + 1) (n := 2 * k.val - 2) (by omega)).trans (oQ_pos d L fx hm0.2)).symm); iexact F10_dst
            isplitl [F11_dst]
            · iapply (Entails.of_eq ((oMix_lt d L fx (t := k.val + 1) (n := 2 * k.val - 1) (by omega)).trans (oQ_pos d L fx (n := 2 * k.val - 1) (by have := hm1.2; rwa [show 2 * k.val + 1 - 2 = 2 * k.val - 1 by omega] at this))).symm)
              iapply (Entails.of_eq (congrArg (oqPiece d L fx) (show 2 * k.val + 1 - 2 = 2 * k.val - 1 by omega))); iexact F11_dst
            iapply (Entails.of_eq (oMix_core d L fx k.val)); iexact HOut
          isplitl [F8]
          · iapply (Entails.of_eq (congrArg (inSlotV d L fx a4 cc16_scratch4.sem) (show 2 * k.val + 2 = 2 * (k.val + 1) by ring)))
            iapply (fl_inV d L fx (off_6 L k v2) (k16_off6_inb L k k16_h3) v2 a4 cc16_scratch4.sem); iexists _, _
            isplitr
            rotate_left
            · iexact F8
            ipureintro; intro y; rfl
          isplitl [F10 H6]
          · iapply (Entails.of_eq (congrArg (outSlotV d L fx a6 cc16_scratch6.sem) (show 2 * k.val + 2 = 2 * (k.val + 1) by ring)))
            iapply (fl_outV d L fx (off_5 L k v0) (k16_off5_inb L k k16_h2) v0 a4 a6 cc16_scratch6.sem f0 g4 g6' hl6 hin4); iexists _
            isplitr
            rotate_left
            · isplitl [F10]; · iexact F10
              iexact H6
            ipureintro; intro y; rfl
          isplitl [H5 F9]
          · iapply (Entails.of_eq (congrArg (inSlotV d L fx a5 cc16_scratch5.sem) (show 2 * k.val + 3 = 2 * (k.val + 1) + 1 by ring)))
            iapply (Entails.of_eq (inSlotV_neg d L fx v3').symm)
            isplitl [H5]; · iexists _; iexact H5
            iexact F9
          · iapply (Entails.of_eq (congrArg (outSlotV d L fx a7 cc16_scratch7.sem) (show 2 * k.val + 1 + 2 = 2 * (k.val + 1) + 1 by ring)))
            iapply (fl_outV d L fx (off_10 L k v1) (k16_off10_inb L k k16_h5) v1 a5 a7 cc16_scratch7.sem f1 g5 g7' hl7 hin5); iexists _
            isplitr
            rotate_left
            · isplitl [F11]; · iexact F11
              iexact H7
            ipureintro; intro y; rfl
        · have h7 : k.val = 7 := by unfold valid at v3; omega
          by_cases hb : big L
          · -- the last trip of a tile with sixteen pieces: nothing more to fetch
            have k16_h1 : k16_cond1 k = 1#1 := (cond1_iff k).mpr (by omega)
            have k16_h2 : k16_cond2 L k = 1#1 := cond2_iff L k
            have k16_h3 : ¬ k16_cond3 L k = 1#1 := fun h => absurd ((cond3_iff L k).mp h) (by omega)
            have k16_h4 : k16_cond4 k = 1#1 := (cond4_iff k).mpr (by omega)
            have k16_h5 : k16_cond5 L k = 1#1 := (cond5_iff L k).mpr (by first | (unfold valid big at *; omega) | (unfold big at *; omega) | omega)
            have k16_h6 : ¬ k16_cond6 L k = 1#1 := fun h => absurd ((cond6_iff L k).mp h) (by first | (unfold valid big at *; omega) | (unfold big at *; omega) | omega)
            have v0 : valid L (2 * k.val) := by unfold valid big at *; omega
            have v1 : valid L (2 * k.val + 1) := by unfold valid big at *; omega
            have v2 : ¬ valid L (2 * k.val + 2) := by unfold valid big at *; omega
            have v3' : ¬ valid L (2 * k.val + 3) := by unfold valid big at *; omega
            have hm0 : 2 ≤ 2 * k.val ∧ valid L (2 * k.val - 2) := ⟨by omega, by unfold valid big at *; omega⟩
            have hm1 : 2 ≤ 2 * k.val + 1 ∧ valid L (2 * k.val + 1 - 2) := ⟨by omega, by unfold valid big at *; omega⟩
            ihave S8 := (Entails.of_eq (inSlotV_pos d L fx v0)) $$ S8
            icases S8 with ⟨%g4, %hin4, F8⟩
            ihave S9 := (Entails.of_eq (inSlotV_pos d L fx v1)) $$ S9
            icases S9 with ⟨%g5, %hin5, F9⟩
            ihave S10 := (Entails.of_eq (outSlotV_pos d L fx hm0)) $$ S10
            icases S10 with ⟨%g6, F10, R6⟩
            ihave S11 := (Entails.of_eq (outSlotV_pos d L fx hm1)) $$ S11
            icases S11 with ⟨%g7, F11, R7⟩
            ihave HX := (Entails.of_eq (xSet_out (xP d L fx) k.val hk)) $$ HX
            icases HX with ⟨-, -, HX⟩
            ihave HOut := (Entails.of_eq (oSet_out (oMix d L fx k.val) k.val hk)) $$ HOut
            icases HOut with ⟨Y0, Y1, HOut⟩
            ihave Y0 := (Entails.of_eq ((oMix_ge d L fx (t := k.val) (n := 2 * k.val) (by omega)).trans (oP_pos (F := F) d L v0))) $$ Y0
            icases Y0 with ⟨%f0, Y0⟩
            ihave Y0 := (Entails.of_eq (out_congr d L (off_5 L k v0).symm (out_inb L _) (k16_off5_inb L k k16_h2) f0)) $$ Y0
            ihave Y1 := (Entails.of_eq ((oMix_ge d L fx (t := k.val) (n := 2 * k.val + 1) (by omega)).trans (oP_pos (F := F) d L v1))) $$ Y1
            icases Y1 with ⟨%f1, Y1⟩
            ihave Y1 := (Entails.of_eq (out_congr d L (off_10 L k v1).symm (out_inb L _) (k16_off10_inb L k k16_h5) f1)) $$ Y1
            sl_exec
            sl_for (laneV0 d L g4) $$ [F8_dst R6]
            case region =>
              intro (j : Fin k16_t2_loop.trips) _
              unfold laneV0
              iintro ⟨HA, %g, HB, %hl⟩
              sl_exec
              sl_step
              isplitl [HA]; · iexact HA
              iexists _; isplitl [HB]; · iexact HB
              ipureintro; exact lanes_step d L a4 a6 g4 g j _ _ hl
            · unfold laneV0
              isplitl [F8_dst]; · iexact F8_dst
              iexists _; isplitl [R6]; · iexact R6
              ipureintro; exact lanes_zero d L a4 a6 g4 _
            iintro %_ HI
            unfold laneV0
            icases HI with ⟨H4, %g6', H6, %hl6⟩
            have hl6 : Lanes d L a4 a6 g4 g6' 200 := Eq.mp (congrArg (Lanes d L a4 a6 g4 g6') trips2) hl6
            sl_exec
            sl_for (laneV1 d L g5) $$ [F9_dst R7]
            case region =>
              intro (j : Fin k16_t3_loop.trips) _
              unfold laneV1
              iintro ⟨HA, %g, HB, %hl⟩
              sl_exec
              sl_step
              isplitl [HA]; · iexact HA
              iexists _; isplitl [HB]; · iexact HB
              ipureintro; exact lanes_step' d L a5 a7 g5 g j _ _ hl
            · unfold laneV1
              isplitl [F9_dst]; · iexact F9_dst
              iexists _; isplitl [R7]; · iexact R7
              ipureintro; exact lanes_zero d L a5 a7 g5 _
            iintro %_ HI
            unfold laneV1
            icases HI with ⟨H5, %g7', H7, %hl7⟩
            have hl7 : Lanes d L a5 a7 g5 g7' 200 := Eq.mp (congrArg (Lanes d L a5 a7 g5 g7') trips3) hl7
            sl_exec
            sl_step
            isplitr; · iexact Hmw
            isplitl [HO]
            · iexists _; isplitr
              rotate_left
              · iexact HO
              ipureintro; intro p hp
              rcases Finset.mem_insert.mp hp with rfl | hp
              · exact .inr rfl
              rcases Finset.mem_insert.mp hp with rfl | hp
              · exact .inr rfl
              rcases Finset.mem_insert.mp hp with rfl | hp
              · exact .inr rfl
              rcases Finset.mem_insert.mp hp with rfl | hp
              · exact .inr rfl
              exact hW' p hp
            isplitl [HX F8_src F9_src]
            · iapply (Entails.of_eq (xSet_in (xP d L fx) k.val hk).symm)
              isplitl [F8_src]; · iapply (Entails.of_eq (xP_pos d L fx v0).symm); iexact F8_src
              isplitl [F9_src]; · iapply (Entails.of_eq (xP_pos d L fx v1).symm); iexact F9_src
              iexact HX
            isplitl [HOut F10_dst F11_dst]
            · iapply (Entails.of_eq (oSet_in (oMix d L fx (k.val + 1)) k.val hk (by omega)).symm)
              isplitl [F10_dst]; · iapply (Entails.of_eq ((oMix_lt d L fx (t := k.val + 1) (n := 2 * k.val - 2) (by omega)).trans (oQ_pos d L fx hm0.2)).symm); iexact F10_dst
              isplitl [F11_dst]
              · iapply (Entails.of_eq ((oMix_lt d L fx (t := k.val + 1) (n := 2 * k.val - 1) (by omega)).trans (oQ_pos d L fx (n := 2 * k.val - 1) (by have := hm1.2; rwa [show 2 * k.val + 1 - 2 = 2 * k.val - 1 by omega] at this))).symm)
                iapply (Entails.of_eq (congrArg (oqPiece d L fx) (show 2 * k.val + 1 - 2 = 2 * k.val - 1 by omega))); iexact F11_dst
              iapply (Entails.of_eq (oMix_core d L fx k.val)); iexact HOut
            isplitl [H4 F8]
            · iapply (Entails.of_eq (congrArg (inSlotV d L fx a4 cc16_scratch4.sem) (show 2 * k.val + 2 = 2 * (k.val + 1) by ring)))
              iapply (Entails.of_eq (inSlotV_neg d L fx v2).symm)
              isplitl [H4]; · iexists _; iexact H4
              iexact F8
            isplitl [F10 H6]
            · iapply (Entails.of_eq (congrArg (outSlotV d L fx a6 cc16_scratch6.sem) (show 2 * k.val + 2 = 2 * (k.val + 1) by ring)))
              iapply (fl_outV d L fx (off_5 L k v0) (k16_off5_inb L k k16_h2) v0 a4 a6 cc16_scratch6.sem f0 g4 g6' hl6 hin4); iexists _
              isplitr
              rotate_left
              · isplitl [F10]; · iexact F10
                iexact H6
              ipureintro; intro y; rfl
            isplitl [H5 F9]
            · iapply (Entails.of_eq (congrArg (inSlotV d L fx a5 cc16_scratch5.sem) (show 2 * k.val + 3 = 2 * (k.val + 1) + 1 by ring)))
              iapply (Entails.of_eq (inSlotV_neg d L fx v3').symm)
              isplitl [H5]; · iexists _; iexact H5
              iexact F9
            · iapply (Entails.of_eq (congrArg (outSlotV d L fx a7 cc16_scratch7.sem) (show 2 * k.val + 1 + 2 = 2 * (k.val + 1) + 1 by ring)))
              iapply (fl_outV d L fx (off_10 L k v1) (k16_off10_inb L k k16_h5) v1 a5 a7 cc16_scratch7.sem f1 g5 g7' hl7 hin5); iexists _
              isplitr
              rotate_left
              · isplitl [F11]; · iexact F11
                iexact H7
              ipureintro; intro y; rfl
          · -- the last trip of a tile with fifteen pieces: the second slot only drains
            have k16_h1 : k16_cond1 k = 1#1 := (cond1_iff k).mpr (by omega)
            have k16_h2 : k16_cond2 L k = 1#1 := cond2_iff L k
            have k16_h3 : ¬ k16_cond3 L k = 1#1 := fun h => absurd ((cond3_iff L k).mp h) (by omega)
            have k16_h4 : k16_cond4 k = 1#1 := (cond4_iff k).mpr (by omega)
            have k16_h5 : ¬ k16_cond5 L k = 1#1 := fun h => absurd ((cond5_iff L k).mp h) (by first | (unfold valid big at *; omega) | (unfold big at *; omega) | omega)
            have k16_h6 : ¬ k16_cond6 L k = 1#1 := fun h => absurd ((cond6_iff L k).mp h) (by first | (unfold valid big at *; omega) | (unfold big at *; omega) | omega)
            have v0 : valid L (2 * k.val) := by unfold valid big at *; omega
            have v1 : ¬ valid L (2 * k.val + 1) := by unfold valid big at *; omega
            have v2 : ¬ valid L (2 * k.val + 2) := by unfold valid big at *; omega
            have v3' : ¬ valid L (2 * k.val + 3) := by unfold valid big at *; omega
            have hm0 : 2 ≤ 2 * k.val ∧ valid L (2 * k.val - 2) := ⟨by omega, by unfold valid big at *; omega⟩
            have hm1 : 2 ≤ 2 * k.val + 1 ∧ valid L (2 * k.val + 1 - 2) := ⟨by omega, by unfold valid big at *; omega⟩
            ihave S8 := (Entails.of_eq (inSlotV_pos d L fx v0)) $$ S8
            icases S8 with ⟨%g4, %hin4, F8⟩
            ihave S9 := (Entails.of_eq (inSlotV_neg d L fx v1)) $$ S9
            icases S9 with ⟨⟨%g5, H5⟩, F9⟩
            ihave S10 := (Entails.of_eq (outSlotV_pos d L fx hm0)) $$ S10
            icases S10 with ⟨%g6, F10, R6⟩
            ihave S11 := (Entails.of_eq (outSlotV_pos d L fx hm1)) $$ S11
            icases S11 with ⟨%g7, F11, R7⟩
            ihave HX := (Entails.of_eq (xSet_out (xP d L fx) k.val hk)) $$ HX
            icases HX with ⟨-, -, HX⟩
            ihave HOut := (Entails.of_eq (oSet_out (oMix d L fx k.val) k.val hk)) $$ HOut
            icases HOut with ⟨Y0, -, HOut⟩
            ihave Y0 := (Entails.of_eq ((oMix_ge d L fx (t := k.val) (n := 2 * k.val) (by omega)).trans (oP_pos (F := F) d L v0))) $$ Y0
            icases Y0 with ⟨%f0, Y0⟩
            ihave Y0 := (Entails.of_eq (out_congr d L (off_5 L k v0).symm (out_inb L _) (k16_off5_inb L k k16_h2) f0)) $$ Y0
            sl_exec
            sl_for (laneV0 d L g4) $$ [F8_dst R6]
            case region =>
              intro (j : Fin k16_t2_loop.trips) _
              unfold laneV0
              iintro ⟨HA, %g, HB, %hl⟩
              sl_exec
              sl_step
              isplitl [HA]; · iexact HA
              iexists _; isplitl [HB]; · iexact HB
              ipureintro; exact lanes_step d L a4 a6 g4 g j _ _ hl
            · unfold laneV0
              isplitl [F8_dst]; · iexact F8_dst
              iexists _; isplitl [R6]; · iexact R6
              ipureintro; exact lanes_zero d L a4 a6 g4 _
            iintro %_ HI
            unfold laneV0
            icases HI with ⟨H4, %g6', H6, %hl6⟩
            have hl6 : Lanes d L a4 a6 g4 g6' 200 := Eq.mp (congrArg (Lanes d L a4 a6 g4 g6') trips2) hl6
            sl_exec
            sl_step
            isplitr; · iexact Hmw
            isplitl [HO]
            · iexists _; isplitr
              rotate_left
              · iexact HO
              ipureintro; intro p hp
              rcases Finset.mem_insert.mp hp with rfl | hp
              · exact .inr rfl
              rcases Finset.mem_insert.mp hp with rfl | hp
              · exact .inr rfl
              rcases Finset.mem_insert.mp hp with rfl | hp
              · exact .inr rfl
              exact hW' p hp
            isplitl [HX F8_src]
            · iapply (Entails.of_eq (xSet_in (xP d L fx) k.val hk).symm)
              isplitl [F8_src]; · iapply (Entails.of_eq (xP_pos d L fx v0).symm); iexact F8_src
              isplitr; · iapply (Entails.of_eq (xP_neg d L fx v1).symm); iempintro
              iexact HX
            isplitl [HOut F10_dst F11_dst]
            · iapply (Entails.of_eq (oSet_in (oMix d L fx (k.val + 1)) k.val hk (by omega)).symm)
              isplitl [F10_dst]; · iapply (Entails.of_eq ((oMix_lt d L fx (t := k.val + 1) (n := 2 * k.val - 2) (by omega)).trans (oQ_pos d L fx hm0.2)).symm); iexact F10_dst
              isplitl [F11_dst]
              · iapply (Entails.of_eq ((oMix_lt d L fx (t := k.val + 1) (n := 2 * k.val - 1) (by omega)).trans (oQ_pos d L fx (n := 2 * k.val - 1) (by have := hm1.2; rwa [show 2 * k.val + 1 - 2 = 2 * k.val - 1 by omega] at this))).symm)
                iapply (Entails.of_eq (congrArg (oqPiece d L fx) (show 2 * k.val + 1 - 2 = 2 * k.val - 1 by omega))); iexact F11_dst
              iapply (Entails.of_eq (oMix_core d L fx k.val)); iexact HOut
            isplitl [H4 F8]
            · iapply (Entails.of_eq (congrArg (inSlotV d L fx a4 cc16_scratch4.sem) (show 2 * k.val + 2 = 2 * (k.val + 1) by ring)))
              iapply (Entails.of_eq (inSlotV_neg d L fx v2).symm)
              isplitl [H4]; · iexists _; iexact H4
              iexact F8
            isplitl [F10 H6]
            · iapply (Entails.of_eq (congrArg (outSlotV d L fx a6 cc16_scratch6.sem) (show 2 * k.val + 2 = 2 * (k.val + 1) by ring)))
              iapply (fl_outV d L fx (off_5 L k v0) (k16_off5_inb L k k16_h2) v0 a4 a6 cc16_scratch6.sem f0 g4 g6' hl6 hin4); iexists _
              isplitr
              rotate_left
              · isplitl [F10]; · iexact F10
                iexact H6
              ipureintro; intro y; rfl
            isplitl [H5 F9]
            · iapply (Entails.of_eq (congrArg (inSlotV d L fx a5 cc16_scratch5.sem) (show 2 * k.val + 3 = 2 * (k.val + 1) + 1 by ring)))
              iapply (Entails.of_eq (inSlotV_neg d L fx v3').symm)
              isplitl [H5]; · iexists _; iexact H5
              iexact F9
            · iapply (Entails.of_eq (outSlotV_neg d L fx (m := 2 * (k.val + 1) + 1) (by intro h; apply v1; have := h.2; rwa [show 2 * (k.val + 1) + 1 - 2 = 2 * k.val + 1 by omega] at this)).symm)
              isplitl [R7]; · iexists _; iexact R7
              iexact F11
    · have hk0 : k.val = 0 := by omega
      -- the first trip: nothing to drain
      have k16_h1 : ¬ k16_cond1 k = 1#1 := fun h => absurd ((cond1_iff k).mp h) (by omega)
      have k16_h2 : k16_cond2 L k = 1#1 := cond2_iff L k
      have k16_h3 : k16_cond3 L k = 1#1 := (cond3_iff L k).mpr (by omega)
      have k16_h4 : ¬ k16_cond4 k = 1#1 := fun h => absurd ((cond4_iff k).mp h) (by omega)
      have k16_h5 : k16_cond5 L k = 1#1 := (cond5_iff L k).mpr (by first | (unfold valid big at *; omega) | (unfold big at *; omega) | omega)
      have k16_h6 : k16_cond6 L k = 1#1 := (cond6_iff L k).mpr (by first | (unfold valid big at *; omega) | (unfold big at *; omega) | omega)
      have v0 : valid L (2 * k.val) := by unfold valid big at *; omega
      have v1 : valid L (2 * k.val + 1) := by unfold valid big at *; omega
      have v2 : valid L (2 * k.val + 2) := by unfold valid big at *; omega
      have v3' : valid L (2 * k.val + 3) := by unfold valid big at *; omega
      have hm0 : ¬ (2 ≤ 2 * k.val ∧ valid L (2 * k.val - 2)) := by omega
      have hm1 : ¬ (2 ≤ 2 * k.val + 1 ∧ valid L (2 * k.val + 1 - 2)) := by omega
      ihave S8 := (Entails.of_eq (inSlotV_pos d L fx v0)) $$ S8
      icases S8 with ⟨%g4, %hin4, F8⟩
      ihave S9 := (Entails.of_eq (inSlotV_pos d L fx v1)) $$ S9
      icases S9 with ⟨%g5, %hin5, F9⟩
      ihave S10 := (Entails.of_eq (outSlotV_neg d L fx hm0)) $$ S10
      icases S10 with ⟨⟨%g6, R6⟩, F10⟩
      ihave S11 := (Entails.of_eq (outSlotV_neg d L fx hm1)) $$ S11
      icases S11 with ⟨⟨%g7, R7⟩, F11⟩
      ihave HX := (Entails.of_eq (xSet_out (xP d L fx) k.val hk)) $$ HX
      icases HX with ⟨X2, X3, HX⟩
      ihave X2 := (Entails.of_eq (xP_pos d L fx v2)) $$ X2
      ihave X2 := (Entails.of_eq (in_congr d L (off_6 L k v2).symm (in_inb L _) (k16_off6_inb L k k16_h3) fx)) $$ X2
      ihave X3 := (Entails.of_eq (xP_pos d L fx v3')) $$ X3
      ihave X3 := (Entails.of_eq (in_congr d L (off_11 L k v3').symm (in_inb L _) (k16_off11_inb L k k16_h6) fx)) $$ X3
      ihave HOut := (Entails.of_eq (oSet_out (oMix d L fx k.val) k.val hk)) $$ HOut
      icases HOut with ⟨Y0, Y1, HOut⟩
      ihave Y0 := (Entails.of_eq ((oMix_ge d L fx (t := k.val) (n := 2 * k.val) (by omega)).trans (oP_pos (F := F) d L v0))) $$ Y0
      icases Y0 with ⟨%f0, Y0⟩
      ihave Y0 := (Entails.of_eq (out_congr d L (off_5 L k v0).symm (out_inb L _) (k16_off5_inb L k k16_h2) f0)) $$ Y0
      ihave Y1 := (Entails.of_eq ((oMix_ge d L fx (t := k.val) (n := 2 * k.val + 1) (by omega)).trans (oP_pos (F := F) d L v1))) $$ Y1
      icases Y1 with ⟨%f1, Y1⟩
      ihave Y1 := (Entails.of_eq (out_congr d L (off_10 L k v1).symm (out_inb L _) (k16_off10_inb L k k16_h5) f1)) $$ Y1
      sl_exec
      sl_for (laneV0 d L g4) $$ [F8_dst R6]
      case region =>
        intro (j : Fin k16_t2_loop.trips) _
        unfold laneV0
        iintro ⟨HA, %g, HB, %hl⟩
        sl_exec
        sl_step
        isplitl [HA]; · iexact HA
        iexists _; isplitl [HB]; · iexact HB
        ipureintro; exact lanes_step d L a4 a6 g4 g j _ _ hl
      · unfold laneV0
        isplitl [F8_dst]; · iexact F8_dst
        iexists _; isplitl [R6]; · iexact R6
        ipureintro; exact lanes_zero d L a4 a6 g4 _
      iintro %_ HI
      unfold laneV0
      icases HI with ⟨H4, %g6', H6, %hl6⟩
      have hl6 : Lanes d L a4 a6 g4 g6' 200 := Eq.mp (congrArg (Lanes d L a4 a6 g4 g6') trips2) hl6
      sl_exec
      sl_for (laneV1 d L g5) $$ [F9_dst R7]
      case region =>
        intro (j : Fin k16_t3_loop.trips) _
        unfold laneV1
        iintro ⟨HA, %g, HB, %hl⟩
        sl_exec
        sl_step
        isplitl [HA]; · iexact HA
        iexists _; isplitl [HB]; · iexact HB
        ipureintro; exact lanes_step' d L a5 a7 g5 g j _ _ hl
      · unfold laneV1
        isplitl [F9_dst]; · iexact F9_dst
        iexists _; isplitl [R7]; · iexact R7
        ipureintro; exact lanes_zero d L a5 a7 g5 _
      iintro %_ HI
      unfold laneV1
      icases HI with ⟨H5, %g7', H7, %hl7⟩
      have hl7 : Lanes d L a5 a7 g5 g7' 200 := Eq.mp (congrArg (Lanes d L a5 a7 g5 g7') trips3) hl7
      sl_exec
      sl_step
      isplitr; · iexact Hmw
      isplitl [HO]
      · iexists _; isplitr
        rotate_left
        · iexact HO
        ipureintro; intro p hp
        rcases Finset.mem_insert.mp hp with rfl | hp
        · exact .inr rfl
        rcases Finset.mem_insert.mp hp with rfl | hp
        · exact .inr rfl
        exact hW' p hp
      isplitl [HX F8_src F9_src]
      · iapply (Entails.of_eq (xSet_in (xP d L fx) k.val hk).symm)
        isplitl [F8_src]; · iapply (Entails.of_eq (xP_pos d L fx v0).symm); iexact F8_src
        isplitl [F9_src]; · iapply (Entails.of_eq (xP_pos d L fx v1).symm); iexact F9_src
        iexact HX
      isplitl [HOut]
      · iapply (Entails.of_eq (congrArg (fun s => bigSep s (oMix d L fx (k.val + 1))) (show oCore k.val = oSet (k.val + 1) by rw [hk0]; decide)))
        iapply (Entails.of_eq (oMix_core d L fx k.val)); iexact HOut
      isplitl [F8]
      · iapply (Entails.of_eq (congrArg (inSlotV d L fx a4 cc16_scratch4.sem) (show 2 * k.val + 2 = 2 * (k.val + 1) by ring)))
        iapply (fl_inV d L fx (off_6 L k v2) (k16_off6_inb L k k16_h3) v2 a4 cc16_scratch4.sem); iexists _, _
        isplitr
        rotate_left
        · iexact F8
        ipureintro; intro y; rfl
      isplitl [F10 H6]
      · iapply (Entails.of_eq (congrArg (outSlotV d L fx a6 cc16_scratch6.sem) (show 2 * k.val + 2 = 2 * (k.val + 1) by ring)))
        iapply (fl_outV d L fx (off_5 L k v0) (k16_off5_inb L k k16_h2) v0 a4 a6 cc16_scratch6.sem f0 g4 g6' hl6 hin4); iexists _
        isplitr
        rotate_left
        · isplitl [F10]; · iexact F10
          iexact H6
        ipureintro; intro y; rfl
      isplitl [F9]
      · iapply (Entails.of_eq (congrArg (inSlotV d L fx a5 cc16_scratch5.sem) (show 2 * k.val + 3 = 2 * (k.val + 1) + 1 by ring)))
        iapply (fl_inV d L fx (off_11 L k v3') (k16_off11_inb L k k16_h6) v3' a5 cc16_scratch5.sem); iexists _, _
        isplitr
        rotate_left
        · iexact F9
        ipureintro; intro y; rfl
      · iapply (Entails.of_eq (congrArg (outSlotV d L fx a7 cc16_scratch7.sem) (show 2 * k.val + 1 + 2 = 2 * (k.val + 1) + 1 by ring)))
        iapply (fl_outV d L fx (off_10 L k v1) (k16_off10_inb L k k16_h5) v1 a5 a7 cc16_scratch7.sem f1 g5 g7' hl7 hin5); iexists _
        isplitr
        rotate_left
        · isplitl [F11]; · iexact F11
          iexact H7
        ipureintro; intro y; rfl
  · unfold invV
    isplitr; · iexact Hmw
    isplitl [HO]
    · iexists W; isplitr
      · ipureintro; exact fun p hp => .inl hp
      · iexact HO
    isplitl [HX]; · iexact HX
    isplitl [HOut]; · iapply (Entails.of_eq (oMix_zero d L fx).symm); iexact HOut
    isplitl [S8]; · iexact S8
    isplitl [H6 Hs10]
    · rw [outSlotV_neg d L fx (by omega)]; isplitl [H6]; · iexists _; iexact H6
      iexact Hs10
    isplitl [S9]; · iexact S9
    rw [outSlotV_neg d L fx (by omega)]; isplitl [H7]; · iexists _; iexact H7
    iexact Hs11
  iintro %acc' HI
  ihave HI := (Entails.of_eq (congrArg (fun t => invV d L O W fx t acc') trips1)) $$ HI
  unfold invV
  icases HI with ⟨-, ⟨%W', %hW', HO⟩, HX, HOut, S8, S10, S9, S11⟩
  have nv16 : ¬ valid L (2 * 8) := by unfold valid; omega
  have nv17 : ¬ valid L (2 * 8 + 1) := by unfold valid; omega
  have hm14 : 2 ≤ 2 * 8 ∧ valid L (2 * 8 - 2) := ⟨by omega, Or.inl (by omega)⟩
  ihave S8 := (Entails.of_eq (inSlotV_neg d L fx nv16)) $$ S8
  icases S8 with ⟨⟨%g4', H4⟩, Hs8⟩
  ihave S9 := (Entails.of_eq (inSlotV_neg d L fx nv17)) $$ S9
  icases S9 with ⟨⟨%g5', H5⟩, Hs9⟩
  ihave S10 := (Entails.of_eq (outSlotV_pos d L fx hm14)) $$ S10
  icases S10 with ⟨%g6', F10, R6⟩
  by_cases hb : big L
  · have k16_h8 : k16_cond8 L = 1#1 := (cond8_iff L).mpr hb
    have hm15 : 2 ≤ 2 * 8 + 1 ∧ valid L (2 * 8 + 1 - 2) := ⟨by omega, Or.inr ⟨by omega, hb⟩⟩
    ihave S11 := (Entails.of_eq (outSlotV_pos d L fx hm15)) $$ S11
    icases S11 with ⟨%g7', F11, R7⟩
    sl_exec
    sl_step
    isplitl [HX]; · iapply (xRange_end d L fx); iexact HX
    isplitl [HOut F10_dst F11_dst]
    · iapply (Entails.of_eq (oRange_end (oQ d L fx)).symm)
      isplitl [F10_dst]; · iapply (Entails.of_eq (oQ_pos d L fx hm14.2).symm); iexact F10_dst
      isplitl [F11_dst]; · iapply (Entails.of_eq (oQ_pos d L fx hm15.2).symm); iexact F11_dst
      iapply (Entails.of_eq (oMix_end d L fx)); iexact HOut
    isplitl [H4]; · iexists _; iexact H4
    isplitl [H5]; · iexists _; iexact H5
    isplitl [R6]; · iexists _; iexact R6
    isplitl [R7]; · iexists _; iexact R7
    isplitl [Hs8]; · iexact Hs8
    isplitl [Hs9]; · iexact Hs9
    isplitl [F10]; · iexact F10
    isplitl [F11]; · iexact F11
    isplitl [HO]
    · iexists _; isplitr
      rotate_left
      · iexact HO
      ipureintro; intro p hp
      rcases Finset.mem_insert.mp hp with rfl | hp
      · exact .inr rfl
      rcases Finset.mem_insert.mp hp with rfl | hp
      · exact .inr rfl
      exact hW' p hp
    iexact HR
  · have k16_h8 : ¬ k16_cond8 L = 1#1 := fun h => hb ((cond8_iff L).mp h)
    have hm15 : ¬ (2 ≤ 2 * 8 + 1 ∧ valid L (2 * 8 + 1 - 2)) := by intro h; have := h.2; unfold valid at this; omega
    ihave S11 := (Entails.of_eq (outSlotV_neg d L fx hm15)) $$ S11
    icases S11 with ⟨⟨%g7', R7⟩, F11⟩
    sl_exec
    sl_step
    isplitl [HX]; · iapply (xRange_end d L fx); iexact HX
    isplitl [HOut F10_dst]
    · iapply (Entails.of_eq (oRange_end (oQ d L fx)).symm)
      isplitl [F10_dst]; · iapply (Entails.of_eq (oQ_pos d L fx hm14.2).symm); iexact F10_dst
      isplitr; · iapply (Entails.of_eq (oQ_neg d L fx (n := 15) (by unfold valid; omega)).symm); iempintro
      iapply (Entails.of_eq (oMix_end d L fx)); iexact HOut
    isplitl [H4]; · iexists _; iexact H4
    isplitl [H5]; · iexists _; iexact H5
    isplitl [R6]; · iexists _; iexact R6
    isplitl [R7]; · iexists _; iexact R7
    isplitl [Hs8]; · iexact Hs8
    isplitl [Hs9]; · iexact Hs9
    isplitl [F10]; · iexact F10
    isplitl [F11]; · iexact F11
    isplitl [HO]
    · iexists _; isplitr
      rotate_left
      · iexact HO
      ipureintro; intro p hp
      rcases Finset.mem_insert.mp hp with rfl | hp
      · exact .inr rfl
      exact hW' p hp
    iexact HR

/-! The subcore's scoped storage: the four staging buffers and the four semaphores of this call, and the rest. -/

abbrev c8 : GSem nD τ sig := (thr d L, SemLoc.dma cc16_scratch4.sem)
abbrev c9 : GSem nD τ sig := (thr d L, SemLoc.dma cc16_scratch5.sem)
abbrev c10 : GSem nD τ sig := (thr d L, SemLoc.dma cc16_scratch6.sem)
abbrev c11 : GSem nD τ sig := (thr d L, SemLoc.dma cc16_scratch7.sem)

omit [FloatOps F] in
theorem ownSems0_V :
    (ownSems0 (thr d L) : sProp 𝕄)
      = iprop(semVal (c8 d L) 0 ∗ semVal (c9 d L) 0 ∗ semVal (c10 d L) 0 ∗ semVal (c11 d L) 0
          ∗ bigSep (((((ownCells (thr d L)).erase (c8 d L)).erase (c9 d L)).erase (c10 d L)).erase (c11 d L)) fun g => semVal g 0) := by
  unfold SparseCore.Cfg.ownSems0
  rw [SparseCore.bigSep_erase' ((mem_ownCells (g := c8 d L)).mpr ⟨rfl, by
      show (SemLoc.dma cc16_scratch4.sem : SemLoc sig).isScoped .scVector = true; decide⟩),
    SparseCore.bigSep_erase' (Finset.mem_erase.mpr ⟨fun e => absurd (Prod.mk.inj e).2 (by decide), (mem_ownCells (g := c9 d L)).mpr ⟨rfl, by
      show (SemLoc.dma cc16_scratch5.sem : SemLoc sig).isScoped .scVector = true; decide⟩⟩),
    SparseCore.bigSep_erase' (Finset.mem_erase.mpr ⟨fun e => absurd (Prod.mk.inj e).2 (by decide), Finset.mem_erase.mpr ⟨fun e => absurd (Prod.mk.inj e).2 (by decide),
      (mem_ownCells (g := c10 d L)).mpr ⟨rfl, by show (SemLoc.dma cc16_scratch6.sem : SemLoc sig).isScoped .scVector = true; decide⟩⟩⟩),
    SparseCore.bigSep_erase' (Finset.mem_erase.mpr ⟨fun e => absurd (Prod.mk.inj e).2 (by decide), Finset.mem_erase.mpr ⟨fun e => absurd (Prod.mk.inj e).2 (by decide),
      Finset.mem_erase.mpr ⟨fun e => absurd (Prod.mk.inj e).2 (by decide),
      (mem_ownCells (g := c11 d L)).mpr ⟨rfl, by show (SemLoc.dma cc16_scratch7.sem : SemLoc sig).isScoped .scVector = true; decide⟩⟩⟩⟩)]

abbrev pV (L : grid16.Coords) : Proc τ := Proc.scVector (cV L) (jV L)

omit [FloatOps F] in
theorem ownBufs_V :
    (ownBufs (thr d L) : sProp 𝕄)
      = iprop((∃ f, (thr d L).loc cc16_scratch0 ↦{fullShare} f) ∗ (∃ f, (thr d L).loc cc16_scratch1 ↦{fullShare} f)
          ∗ (∃ f, (thr d L).loc cc16_scratch2 ↦{fullShare} f) ∗ (∃ f, (thr d L).loc cc16_scratch3 ↦{fullShare} f)
          ∗ bigSep (((((ownRefs (τ := τ) (pV L)).erase ((pV L).devRef cc16_scratch0)).erase ((pV L).devRef cc16_scratch1)).erase
              ((pV L).devRef cc16_scratch2)).erase ((pV L).devRef cc16_scratch3))
              fun b => iprop(∃ f, ((d, b) : Loc nD τ sig) ↦{fullShare} f)) := by
  unfold SparseCore.Cfg.ownBufs
  refine (SparseCore.bigSep_erase' (SparseCore.Cfg.mem_ownRefs_of_owner (p := pV L) (b := (pV L).devRef cc16_scratch0) rfl)).trans ?_
  rw [SparseCore.bigSep_erase' (Finset.mem_erase.mpr ⟨fun e => absurd (Proc.devRef_injective _ e) (show (cc16_scratch1 : Ref sig .scVector) ≠ cc16_scratch0 by decide),
      SparseCore.Cfg.mem_ownRefs_of_owner (p := pV L) (b := (pV L).devRef cc16_scratch1) rfl⟩),
    SparseCore.bigSep_erase' (Finset.mem_erase.mpr ⟨fun e => absurd (Proc.devRef_injective _ e) (show (cc16_scratch2 : Ref sig .scVector) ≠ cc16_scratch1 by decide),
      Finset.mem_erase.mpr ⟨fun e => absurd (Proc.devRef_injective _ e) (show (cc16_scratch2 : Ref sig .scVector) ≠ cc16_scratch0 by decide),
      SparseCore.Cfg.mem_ownRefs_of_owner (p := pV L) (b := (pV L).devRef cc16_scratch2) rfl⟩⟩),
    SparseCore.bigSep_erase' (Finset.mem_erase.mpr ⟨fun e => absurd (Proc.devRef_injective _ e) (show (cc16_scratch3 : Ref sig .scVector) ≠ cc16_scratch2 by decide),
      Finset.mem_erase.mpr ⟨fun e => absurd (Proc.devRef_injective _ e) (show (cc16_scratch3 : Ref sig .scVector) ≠ cc16_scratch1 by decide),
      Finset.mem_erase.mpr ⟨fun e => absurd (Proc.devRef_injective _ e) (show (cc16_scratch3 : Ref sig .scVector) ≠ cc16_scratch0 by decide),
      SparseCore.Cfg.mem_ownRefs_of_owner (p := pV L) (b := (pV L).devRef cc16_scratch3) rfl⟩⟩⟩)]

/-- The rest of the subcore's scoped storage, which the task does not touch. -/
def restR : sProp 𝕄 :=
  iprop((bigSep (((((ownRefs (τ := τ) (pV L)).erase ((pV L).devRef cc16_scratch0)).erase ((pV L).devRef cc16_scratch1)).erase
              ((pV L).devRef cc16_scratch2)).erase ((pV L).devRef cc16_scratch3))
              fun b => iprop(∃ f, ((d, b) : Loc nD τ sig) ↦{fullShare} f))
      ∗ bigSep (((((ownCells (thr d L)).erase (c8 d L)).erase (c9 d L)).erase (c10 d L)).erase (c11 d L)) fun g => semVal g 0)

theorem body_pre (hO : ∀ g, O g none = 0) :
    iprop(levAts (K (F := F)).L (K (F := F)).lev ∗ emp ∗ goRes d L fx ∗ ownBufs (thr d L) ∗ ownSems0 (thr d L) ∗ owes (thr d L) O W)
      ⊢ runPre d L O W fx (restR (F := F) d L) := by
  rw [ownSems0_V, ownBufs_V]
  unfold goRes runPre restR
  iintro ⟨#Hlv, -, ⟨HX, HOut⟩, ⟨H4, H5, H6, H7, Hbufs⟩, ⟨Hs8, Hs9, Hs10, Hs11, Hsems⟩, HO⟩
  ihave Hmw := ((K (F := F)).mayWaits_none (thr := thr d L) hO) $$ Hlv
  isplitr; · iexact Hmw
  isplitl [HO]; · iexact HO
  isplitl [HX]; · iexact HX
  isplitl [HOut]; · iexact HOut
  isplitl [H4]; · iexact H4
  isplitl [H5]; · iexact H5
  isplitl [H6]; · iexact H6
  isplitl [H7]; · iexact H7
  isplitl [Hs8]; · iexact Hs8
  isplitl [Hs9]; · iexact Hs9
  isplitl [Hs10]; · iexact Hs10
  isplitl [Hs11]; · iexact Hs11
  isplitl [Hbufs]; · iexact Hbufs
  iexact Hsems

theorem body_post :
    runPost d L O W fx (restR (F := F) d L)
      ⊢ iprop(tdRes d L fx ∗ ownBufs (thr d L) ∗ ownSems0 (thr d L) ∗ ∃ W', ⌜∀ p ∈ W', p ∈ W ∨ p.2 = none⌝ ∗ owes (thr d L) O W') := by
  rw [ownSems0_V, ownBufs_V]
  unfold tdRes runPost restR
  iintro ⟨HX, HOut, H4, H5, H6, H7, Hs8, Hs9, Hs10, Hs11, HW, Hbufs, Hsems⟩
  isplitl [HX HOut]
  · isplitl [HX]; · iexact HX
    iexact HOut
  isplitl [H4 H5 H6 H7 Hbufs]
  · isplitl [H4]; · iexact H4
    isplitl [H5]; · iexact H5
    isplitl [H6]; · iexact H6
    isplitl [H7]; · iexact H7
    iexact Hbufs
  isplitl [Hs8 Hs9 Hs10 Hs11 Hsems]
  · isplitl [Hs8]; · iexact Hs8
    isplitl [Hs9]; · iexact Hs9
    isplitl [Hs10]; · iexact Hs10
    isplitl [Hs11]; · iexact Hs11
    iexact Hsems
  iexact HW

/-- The task in the launch theorem's shape: from what the call hands the tile and the subcore's scoped storage to
    what the tile hands back and the storage again. -/
theorem tile_body (hF : (K (F := F)).Facts) (hO : ∀ g, O g none = 0) :
    iprop(levAts (K (F := F)).L (K (F := F)).lev ∗ emp ∗ goRes d L fx ∗ scopedBufs (thr d L) ∗ scopedSems0 (thr d L) ∗ owes (thr d L) O W)
      ⊢ wp frame (wpE (defs₀ (F := F)) 𝒱₀ (thr d L) none) Set.univ
          (cc16_sc_group L xtW (Memref.isWhole_whole _) oW (Memref.isWhole_whole _) a4 (Memref.isWhole_whole _) a5 (Memref.isWhole_whole _)
            a6 (Memref.isWhole_whole _) a7 (Memref.isWhole_whole _) cc16_scratch4 cc16_scratch5 cc16_scratch6 cc16_scratch7)
          fun _ => iprop(tdRes d L fx ∗ scopedBufs (thr d L) ∗ scopedSems0 (thr d L)
            ∗ ∃ W', ⌜∀ p ∈ W', p ∈ W ∨ p.2 = none⌝ ∗ owes (thr d L) O W') := by
  rw [(K (F := F)).scopedBufs_V hF d (cV L) (jV L), SparseCore.Cfg.scopedSems0_V (Val := Elt F) d (cV L) (jV L)]
  exact (body_pre d L O W fx hO).trans ((tile_run d L O W fx (restR (F := F) d L)).trans (wp_mono frame _ _ fun _ => body_post d L O W fx))

end Tile

end Cert.Proof.TileK16

end
-- ==== Proof.TileBVal16.lean ====
/-
  What the staging buffers of one vector subcore hold while it copies a piece of 3200 consecutive elements of row 16 of
  the transposed argument into the flat result, read index by index. No program and no ownership here: only the contents.

  A transfer lands the piece in row 0 of an 8 × 3200 staging array (`InRow`: position (0, t) of that row holds element
  (0, pos + t) of the transposed argument, `pos` the piece's first column). A loop of 200 trips copies that row, 16 lanes
  per trip, into the first 3200 elements of a flat staging array of 25600: trip `j` reads the 1 × 16 window at columns
  [16 j, 16 j + 16) of row 0 and writes it, flattened, at elements [16 j, 16 j + 16). After `j` trips the first 16 j
  elements of the flat array are the first 16 j elements of the row (`Lanes`); a trip extends the prefix by 16
  (`lanes_step`: an element below 16 j is outside the window written and keeps its value, an element of the window reads
  the lane written there, which is the row's element at the same column). A second transfer writes the first 3200
  elements of the flat array to the piece of the result at the same `pos`; so every element of that piece of the result
  holds the element of row 16 of the transposed argument at its own position (`out_written`): the composite of the three
  index maps t ↦ (0, pos + t) ↦ (0, t) ↦ t ↦ pos + t is the identity on positions of the row.
-/
import proofs.«206869_g37898791420194_cont_8to1_b_558_20_alg».proof.Proof.TileB16Defs
import proofs.«206869_g37898791420194_cont_8to1_b_558_20_alg».proof.Proof.Spec
import Idealize.ShloMosaic.Lib.WritesUnit
import Idealize.ShloMosaic.Lib.ValueLayout

noncomputable section

namespace Cert.Proof.TileBVal16

open Cert.Proof.TileB16 Cert.Kernel Cert.Kernel.Gen
open Idealize.ShloMosaic Idealize.ShloMosaic.ValueIdx

variable {F : FTy → Type} [FloatOps F]
variable (d : Dev nD) (L : grid16.Coords)
variable (fx : Buf (Elt F) ((Memref.whole main_v0_scv : Memref sig .scVector .hbm S22x1600000 .f32).view.loc (thr d L)))

abbrev rowRect : Rect S8x3200 := Rect.unit (s := S8x3200) ![0, 0] S1x3200.size inb_S8x3200_S1x3200_0_0

/-- row 0 of the staging array is piece n of the argument row -/
def InRow (a : Memref sig .scVector .vmem S8x3200 .f32) (ga : Buf (Elt F) (a.view.loc (thr d L))) (n : ℕ) : Prop :=
  ∀ y : S1x3200.Idx, a.view.read (Elt F) ga (rowRect.emb y) = (inM L n).view.read (Elt F) fx y

theorem inRow_fetch (a : Memref sig .scVector .vmem S8x3200 .f32) (gold : Buf (Elt F) (a.view.loc (thr d L)))
    (w : S1x3200.Idx → Elt F .f32) (n : ℕ) (hw : ∀ y, w y = (inM L n).view.read (Elt F) fx y) :
    InRow d L fx a (a.view.writes (Elt F) gold [⟨rowRect, w⟩]) n :=
  fun y => (View.read_writes_cons_emb a.view gold rowRect w [] y).trans (hw y)

def Lanes (a : Memref sig .scVector .vmem S8x3200 .f32) (b : Memref sig .scVector .vmem S25600 .f32)
    (ga : Buf (Elt F) (a.view.loc (thr d L))) (gb : Buf (Elt F) (b.view.loc (thr d L))) (j : ℕ) : Prop :=
  ∀ (r : ℕ) (hr : r < 3200), r < 16 * j →
    b.view.read (Elt F) gb (ix1 (⟨r, by omega⟩ : Fin 25600)) = a.view.read (Elt F) ga (ix2 (0 : Fin 8) (⟨r, hr⟩ : Fin 3200))

theorem lanes_zero (a : Memref sig .scVector .vmem S8x3200 .f32) (b : Memref sig .scVector .vmem S25600 .f32)
    (ga : Buf (Elt F) (a.view.loc (thr d L))) (gb : Buf (Elt F) (b.view.loc (thr d L))) : Lanes d L a b ga gb 0 := by
  intro r hr h; omega

/-- The 1 × 16 window at column `c` of the staging array, read at lane `t`, is element `(0, c + t)`. -/
theorem idx_window {off : Fin 2 → ℕ} {c : ℕ} (h : off = ![0, c]) (p : ∀ a', off a' + S1x16.size a' ≤ S8x3200.size a')
    (t : Fin 16) (hr : c + t.val < 3200) :
    (Rect.unit (s := S8x3200) off S1x16.size p).toLoadRect.idx (ix2 (0 : Fin 1) t) = ix2 (0 : Fin 8) (⟨c + t.val, hr⟩ : Fin 3200) := by
  subst h
  funext a'; apply Fin.ext
  rw [LoadRect.idx_apply]
  match a' with
  | ⟨0, _⟩ => show 0 + 1 * 0 = 0; omega
  | ⟨1, _⟩ => show c + 1 * t.val = c + t.val; omega

/-- One trip of a lane-copy loop, the offsets given by their closed forms. -/
theorem lanes_step_core (a : Memref sig .scVector .vmem S8x3200 .f32) (b : Memref sig .scVector .vmem S25600 .f32)
    (ga : Buf (Elt F) (a.view.loc (thr d L))) (gb : Buf (Elt F) (b.view.loc (thr d L)))
    (t : ℕ) {off3 : Fin 2 → ℕ} {off4 : Fin 1 → ℕ} (h3 : off3 = ![0, 16 * t]) (h4 : off4 = ![16 * t])
    (p3 : ∀ a', off3 a' + S1x16.size a' ≤ S8x3200.size a') (p4 : ∀ a', off4 a' + S16.size a' ≤ S25600.size a')
    (h : Lanes d L a b ga gb t) :
    Lanes d L a b ga (b.view.writes (Elt F) gb [⟨Rect.unit (s := S25600) off4 S16.size p4,
      shapeCast S16 (a.view.readAt (Elt F) (Rect.unit (s := S8x3200) off3 S1x16.size p3).toLoadRect ga) shapeCasts_S1x16_S16⟩]) (t + 1) := by
  intro r hr hlt
  by_cases hlo : r < 16 * t
  · refine (View.read_writes_cons_unit_of_not_mem b.view gb p4 _ [] _ h4 (0 : Fin 1) (Or.inl ?_)).trans (h r hr hlo)
    show r < 16 * t
    exact hlo
  · have hx : r - 16 * t < 16 := by omega
    refine (View.read_writes_cons_unit_of_mem b.view gb p4 _ [] _ (ix1 (⟨r - 16 * t, hx⟩ : Fin 16)) h4 ?_).trans ?_
    · intro a'
      match a' with
      | ⟨0, _⟩ => show r = 16 * t + (r - 16 * t); omega
    · rw [shapeCast_1a_a_apply, View.readAt_apply, idx_window h3 p3 ⟨r - 16 * t, hx⟩ (by show 16 * t + (r - 16 * t) < 3200; omega)]
      congr 2
      apply Fin.ext
      show 16 * t + (r - 16 * t) = r
      omega

theorem lanes_step (a : Memref sig .scVector .vmem S8x3200 .f32) (b : Memref sig .scVector .vmem S25600 .f32)
    (ga : Buf (Elt F) (a.view.loc (thr d L))) (gb : Buf (Elt F) (b.view.loc (thr d L)))
    (j : Fin k16_t2_loop.trips) (p3 : ∀ a', (k16_off3 j) a' + S1x16.size a' ≤ S8x3200.size a')
    (p4 : ∀ a', (k16_off4 j) a' + S16.size a' ≤ S25600.size a') (h : Lanes d L a b ga gb j.val) :
    Lanes d L a b ga (b.view.writes (Elt F) gb [⟨Rect.unit (s := S25600) (k16_off4 j) S16.size p4,
      k16_pay1 (a.view.readAt (Elt F) (Rect.unit (s := S8x3200) (k16_off3 j) S1x16.size p3).toLoadRect ga)⟩]) (j.val + 1) :=
  lanes_step_core d L a b ga gb j.val (k16_off3_eq j) (k16_off4_eq j) p3 p4 h

theorem lanes_step' (a : Memref sig .scVector .vmem S8x3200 .f32) (b : Memref sig .scVector .vmem S25600 .f32)
    (ga : Buf (Elt F) (a.view.loc (thr d L))) (gb : Buf (Elt F) (b.view.loc (thr d L)))
    (j : Fin k16_t3_loop.trips) (p3 : ∀ a', (k16_off8 j) a' + S1x16.size a' ≤ S8x3200.size a')
    (p4 : ∀ a', (k16_off9 j) a' + S16.size a' ≤ S25600.size a') (h : Lanes d L a b ga gb j.val) :
    Lanes d L a b ga (b.view.writes (Elt F) gb [⟨Rect.unit (s := S25600) (k16_off9 j) S16.size p4,
      k16_pay2 (a.view.readAt (Elt F) (Rect.unit (s := S8x3200) (k16_off8 j) S1x16.size p3).toLoadRect ga)⟩]) (j.val + 1) :=
  lanes_step_core d L a b ga gb j.val (k16_off8_eq j) (k16_off9_eq j) p3 p4 h

/-- Position `y` of the write-out window of the flat staging array is its element `y 0`. -/
theorem stg_emb (y : S3200.Idx) (hy : (y 0).val < 25600) :
    (Rect.unit (s := S25600) ![0] S3200.size inb_S25600_S3200_0).emb y = ix1 (⟨(y 0).val, hy⟩ : Fin 25600) := by
  funext a'; apply Fin.ext
  match a' with
  | ⟨0, _⟩ => show 0 + 1 * (y 0).val = (y 0).val; omega

/-- Position `(0, t)` of row 0 of the staging array is its element `(0, t)`. -/
theorem row_emb (t : Fin 3200) : rowRect.emb (ix2 (0 : Fin 1) t) = ix2 (0 : Fin 8) t := by
  funext a'; apply Fin.ext
  match a' with
  | ⟨0, _⟩ => show 0 + 1 * 0 = 0; omega
  | ⟨1, _⟩ => show 0 + 1 * t.val = t.val; omega

/-- Position `(0, t)` of piece `n` of the argument row is element `(0, pos + t)` of the transposed argument;
    position `y` of piece `n` of the result is element `pos + y 0` of the result. -/
theorem in_emb (n : ℕ) (t : Fin 3200) (h : pos L n + t.val < 1600000) :
    (inM L n).view.emb (ix2 (0 : Fin 1) t) = ix2 (16 : Fin 22) (⟨pos L n + t.val, h⟩ : Fin 1600000) := by
  funext a'; apply Fin.ext
  match a' with
  | ⟨0, _⟩ => show 16 + 1 * 0 = 16; omega
  | ⟨1, _⟩ => show pos L n + 1 * t.val = pos L n + t.val; omega

theorem out_emb (n : ℕ) (y : S3200.Idx) (h : pos L n + (y 0).val < 1600000) :
    (outM L n).view.emb y = ix1 (⟨pos L n + (y 0).val, h⟩ : Fin 1600000) := by
  funext a'; apply Fin.ext
  match a' with
  | ⟨0, _⟩ => show pos L n + 1 * (y 0).val = pos L n + (y 0).val; omega

/-- Both lane-copy loops run 200 trips: 200 · 16 = 3200, the whole row. -/
theorem trips2 : k16_t2_loop.trips = 200 := by decide
theorem trips3 : k16_t3_loop.trips = 200 := by decide

/-- After all its trips a lane-copy loop has copied the whole row. -/
theorem lanes_all (a : Memref sig .scVector .vmem S8x3200 .f32) (b : Memref sig .scVector .vmem S25600 .f32)
    (ga : Buf (Elt F) (a.view.loc (thr d L))) (gb : Buf (Elt F) (b.view.loc (thr d L)))
    (h : Lanes d L a b ga gb k16_t2_loop.trips) : Lanes d L a b ga gb 200 := trips2 ▸ h
theorem lanes_all' (a : Memref sig .scVector .vmem S8x3200 .f32) (b : Memref sig .scVector .vmem S25600 .f32)
    (ga : Buf (Elt F) (a.view.loc (thr d L))) (gb : Buf (Elt F) (b.view.loc (thr d L)))
    (h : Lanes d L a b ga gb k16_t3_loop.trips) : Lanes d L a b ga gb 200 := trips3 ▸ h

/-- The write-out of a piece: the first 3200 elements of the flat staging array, which the 200 lane copies filled from
    row 0 of the staging array, which the fetch filled from piece `n` of row 16 of the transposed argument, land at
    piece `n` of the result, at the same positions of the row. -/
theorem out_written (a : Memref sig .scVector .vmem S8x3200 .f32) (b : Memref sig .scVector .vmem S25600 .f32) (n : ℕ)
    (ga : Buf (Elt F) (a.view.loc (thr d L))) (gb : Buf (Elt F) (b.view.loc (thr d L)))
    (f0 : Buf (Elt F) ((outM L n).view.loc (thr d L))) (w : S3200.Idx → Elt F .f32)
    (hw : ∀ y, w y = (stg b).view.read (Elt F) gb y) (hl : Lanes d L a b ga gb 200) (hr : InRow d L fx a ga n) (hv : valid L n) :
    ∀ i ∈ (outM L n).view.set, ((outM L n).view.writes (Elt F) f0 [⟨Rect.whole _, w⟩]) i = Cert.Spec.row 16 fx i := by
  intro i hi
  obtain ⟨y, -, rfl⟩ := Finset.mem_map.mp hi
  have hy : (y 0).val < 3200 := (y 0).isLt
  have hp : pos L n + (y 0).val < 1600000 := by unfold pos; omega
  have e1 : (outM L n).view.writes (Elt F) f0 [⟨Rect.whole _, w⟩] ((outM L n).view.emb y) = w y := by
    have h := View.read_writes_cons_emb (outM L n).view f0 (Rect.whole _) w [] y
    rw [Rect.emb_whole_apply] at h
    exact (cast_eq _ _).symm.trans ((View.read_apply _ _).symm.trans h)
  have e2 : (stg b).view.read (Elt F) gb y = b.view.read (Elt F) gb (ix1 (⟨(y 0).val, by omega⟩ : Fin 25600)) :=
    congrArg (b.view.read (Elt F) gb) (stg_emb y (by omega))
  have e3 : a.view.read (Elt F) ga (ix2 (0 : Fin 8) (⟨(y 0).val, hy⟩ : Fin 3200))
      = (inM L n).view.read (Elt F) fx (ix2 (0 : Fin 1) (⟨(y 0).val, hy⟩ : Fin 3200)) :=
    (congrArg (a.view.read (Elt F) ga) (row_emb ⟨(y 0).val, hy⟩).symm).trans (hr _)
  have e4 : (inM L n).view.read (Elt F) fx (ix2 (0 : Fin 1) (⟨(y 0).val, hy⟩ : Fin 3200))
      = fx (ix2 (16 : Fin 22) (⟨pos L n + (y 0).val, hp⟩ : Fin 1600000)) :=
    ((View.read_apply _ _).trans (cast_eq _ _)).trans (congrArg fx (in_emb L n ⟨(y 0).val, hy⟩ hp))
  have e5 : Cert.Spec.row 16 fx ((outM L n).view.emb y) = fx (ix2 (16 : Fin 22) (⟨pos L n + (y 0).val, hp⟩ : Fin 1600000)) :=
    (congrArg (Cert.Spec.row 16 fx) (out_emb L n y hp)).trans (Cert.Spec.row_apply 16 fx _)
  exact e1.trans ((hw y).trans (e2.trans ((hl _ hy (by omega)).trans (e3.trans (e4.trans e5.symm)))))

end Cert.Proof.TileBVal16

end
-- ==== Proof.TileB16.lean ====
/-
  One vector subcore's task of copy kernel 16 (counting from 0), run symbolically: the two fetch slots and two write-out slots
  between trips of the main loop (what each transfer in flight will hand back, and what the staging buffers hold), the
  invariant of the main loop and of the two lane-copy loops, and the task's run — from the tile's pieces of row 16 of
  the transposed argument and of the result to the same pieces with the result holding the row's elements.
-/
import proofs.«206869_g37898791420194_cont_8to1_b_558_20_alg».proof.Proof.TileB16Defs
import proofs.«206869_g37898791420194_cont_8to1_b_558_20_alg».proof.Proof.TileBVal16
noncomputable section

namespace Cert.Proof.TileB16

open Cert.Kernel Cert.Kernel.Gen Cert.Proof.TileBVal16
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 22) (Elt F) ℕ UU ℕ
local notation "xtW" => (Memref.whole Cert.Kernel.main_v0_scv : Memref Cert.Kernel.sig Kind.scVector Space.hbm Cert.Kernel.S22x1600000 EltTy.f32)
local notation "oW" => (Memref.whole Cert.Kernel.main_v17_scv : Memref Cert.Kernel.sig Kind.scVector Space.hbm Cert.Kernel.S1600000 EltTy.f32)
local notation "a4" => (Memref.whole Cert.Kernel.cc16_scratch0 : Memref Cert.Kernel.sig Kind.scVector Space.vmem Cert.Kernel.S8x3200 EltTy.f32)
local notation "a5" => (Memref.whole Cert.Kernel.cc16_scratch1 : Memref Cert.Kernel.sig Kind.scVector Space.vmem Cert.Kernel.S8x3200 EltTy.f32)
local notation "a6" => (Memref.whole Cert.Kernel.cc16_scratch2 : Memref Cert.Kernel.sig Kind.scVector Space.vmem Cert.Kernel.S25600 EltTy.f32)
local notation "a7" => (Memref.whole Cert.Kernel.cc16_scratch3 : Memref Cert.Kernel.sig Kind.scVector Space.vmem Cert.Kernel.S25600 EltTy.f32)

variable [FloatOps F]

section Tile

variable (d : Dev nD) (L : grid16.Coords)
variable (O : CellTallies nD τ sig (HIx 22)) (W : Waits sig (HIx 22))
variable (fx : Buf (Elt F) ((xtW).view.loc (thr d L)))

/-- Piece `n` of the result at its final contents. -/
abbrev oqPiece (n : ℕ) : sProp 𝕄 := (outM L n).view.loc (thr d L) ↦[(outM L n).view.set]{fullShare} (Cert.Spec.row 16 fx)
theorem oQ_pos {n : ℕ} (v : valid L n) : oQ d L fx n = oqPiece d L fx n := if_pos v
theorem oQ_neg {n : ℕ} (v : ¬ valid L n) : oQ d L fx n = iprop(emp) := if_neg v

/-- A fetch slot, remembering that the staging row it will hand back holds the piece. -/
def inSlotV (a : Memref sig .scVector .vmem S8x3200 .f32) (sm : DmaSem sig) (n : ℕ) : sProp 𝕄 :=
  if valid L n then
    iprop(∃ g, ⌜InRow d L fx a g n⌝ ∗ Transfers.Flight countersEmb (thr d L) (SemLoc.dma sm) (default : HIx 22) NN
      iprop((a.view.loc (thr d L) ↦{fullShare} g) ∗ xtPiece d L fx n))
  else iprop((∃ g, a.view.loc (thr d L) ↦{fullShare} g) ∗ semVal (thr d L, SemLoc.dma sm) 0)

/-- A write-out slot: the piece in flight will come back holding the row's elements. -/
def outSlotV (a : Memref sig .scVector .vmem S25600 .f32) (sm : DmaSem sig) (m : ℕ) : sProp 𝕄 :=
  if 2 ≤ m ∧ valid L (m - 2) then
    iprop(∃ g, Transfers.Flight countersEmb (thr d L) (SemLoc.dma sm) (default : HIx 22) NN
        iprop(oqPiece d L fx (m - 2) ∗ ((stg a).view.loc (thr d L) ↦[(stg a).view.set]{fullShare} g))
      ∗ (a.view.loc (thr d L) ↦[Finset.univ \ (stg a).view.set]{fullShare} g))
  else iprop((∃ g, a.view.loc (thr d L) ↦{fullShare} g) ∗ semVal (thr d L, SemLoc.dma sm) 0)

theorem inSlotV_pos {a : Memref sig .scVector .vmem S8x3200 .f32} {sm : DmaSem sig} {n : ℕ} (v : valid L n) :
    inSlotV d L fx a sm n = iprop(∃ g, ⌜InRow d L fx a g n⌝ ∗ Transfers.Flight countersEmb (thr d L) (SemLoc.dma sm) (default : HIx 22) NN
      iprop((a.view.loc (thr d L) ↦{fullShare} g) ∗ xtPiece d L fx n)) := by unfold inSlotV; rw [if_pos v]
theorem inSlotV_neg {a : Memref sig .scVector .vmem S8x3200 .f32} {sm : DmaSem sig} {n : ℕ} (v : ¬ valid L n) :
    inSlotV d L fx a sm n = iprop((∃ g, a.view.loc (thr d L) ↦{fullShare} g) ∗ semVal (thr d L, SemLoc.dma sm) 0) := by
  unfold inSlotV; rw [if_neg v]
theorem outSlotV_pos {a : Memref sig .scVector .vmem S25600 .f32} {sm : DmaSem sig} {m : ℕ} (h : 2 ≤ m ∧ valid L (m - 2)) :
    outSlotV d L fx a sm m = iprop(∃ g, Transfers.Flight countersEmb (thr d L) (SemLoc.dma sm) (default : HIx 22) NN
        iprop(oqPiece d L fx (m - 2) ∗ ((stg a).view.loc (thr d L) ↦[(stg a).view.set]{fullShare} g))
      ∗ (a.view.loc (thr d L) ↦[Finset.univ \ (stg a).view.set]{fullShare} g)) := by unfold outSlotV; rw [if_pos h]
theorem outSlotV_neg {a : Memref sig .scVector .vmem S25600 .f32} {sm : DmaSem sig} {m : ℕ} (h : ¬ (2 ≤ m ∧ valid L (m - 2))) :
    outSlotV d L fx a sm m = iprop((∃ g, a.view.loc (thr d L) ↦{fullShare} g) ∗ semVal (thr d L, SemLoc.dma sm) 0) := by
  unfold outSlotV; rw [if_neg h]

/-- A fetch just issued: the staging row will hold what the transfer reads, which is the piece. -/
theorem fl_inV {off : Fin 2 → ℕ} {n : ℕ} (h : off = ![16, pos L n]) (p : ∀ a, off a + S1x3200.size a ≤ S22x1600000.size a) (v : valid L n)
    (a : Memref sig .scVector .vmem S8x3200 .f32) (sm : DmaSem sig) :
    (iprop(∃ (gold : Buf (Elt F) (a.view.loc (thr d L))) (w : S1x3200.Idx → Elt F .f32),
        ⌜∀ y, w y = ((xtW).slice (Rect.unit (s := S22x1600000) off S1x3200.size p) (fun _ => rfl)).view.read (Elt F) fx y⌝
        ∗ Transfers.Flight countersEmb (thr d L) (SemLoc.dma sm) (default : HIx 22) NN
          iprop((a.view.loc (thr d L) ↦{fullShare} a.view.writes (Elt F) gold [⟨rowRect, w⟩])
            ∗ (((xtW).slice (Rect.unit (s := S22x1600000) off S1x3200.size p) (fun _ => rfl)).view.loc (thr d L)
                ↦[((xtW).slice (Rect.unit (s := S22x1600000) off S1x3200.size p) (fun _ => rfl)).view.set]{fullShare} fx))) : sProp 𝕄)
      ⊢ inSlotV d L fx a sm n := by
  subst h
  rw [inSlotV_pos d L fx v]
  iintro ⟨%gold, %w, %hw, H⟩
  iexists _
  isplitr
  · ipureintro; exact inRow_fetch d L fx a gold w n hw
  · iexact H

set_option maxHeartbeats 4000000 in
/-- A write-out just issued from a flat staging buffer whose first 3200 elements are the staging row, itself piece
    `n` of the argument row: the piece of the result will hold the row's elements. -/
theorem fl_outV {off : Fin 1 → ℕ} {n : ℕ} (h : off = ![pos L n]) (p : ∀ a, off a + S3200.size a ≤ S1600000.size a) (v : valid L n)
    (ar : Memref sig .scVector .vmem S8x3200 .f32) (a : Memref sig .scVector .vmem S25600 .f32) (sm : DmaSem sig)
    (f0 : Buf (Elt F) ((oW).view.loc (thr d L))) (ga : Buf (Elt F) (ar.view.loc (thr d L))) (gb : Buf (Elt F) (a.view.loc (thr d L)))
    (hl : Lanes d L ar a ga gb 200) (hr : InRow d L fx ar ga n) :
    (iprop(∃ (w : S3200.Idx → Elt F .f32),
        ⌜∀ y, w y = (stg a).view.read (Elt F) gb y⌝
        ∗ Transfers.Flight countersEmb (thr d L) (SemLoc.dma sm) (default : HIx 22) NN
          iprop((((oW).slice (Rect.unit (s := S1600000) off S3200.size p) (fun _ => rfl)).view.loc (thr d L)
                ↦[((oW).slice (Rect.unit (s := S1600000) off S3200.size p) (fun _ => rfl)).view.set]{fullShare}
                  (((oW).slice (Rect.unit (s := S1600000) off S3200.size p) (fun _ => rfl)).view.writes (Elt F) f0 [⟨Rect.whole _, w⟩]))
            ∗ ((stg a).view.loc (thr d L) ↦[(stg a).view.set]{fullShare} gb))
        ∗ (a.view.loc (thr d L) ↦[Finset.univ \ (stg a).view.set]{fullShare} gb)) : sProp 𝕄)
      ⊢ outSlotV d L fx a sm (n + 2) := by
  subst h
  rw [outSlotV_pos d L fx (m := n + 2) ⟨by omega, by simpa using v⟩]
  iintro ⟨%w, %hw, H, R⟩
  have hD : (iprop(((outM L n).view.loc (thr d L) ↦[(outM L n).view.set]{fullShare} ((outM L n).view.writes (Elt F) f0 [⟨Rect.whole _, w⟩]))
          ∗ ((stg a).view.loc (thr d L) ↦[(stg a).view.set]{fullShare} gb)) : sProp 𝕄)
      ⊢ iprop(oqPiece d L fx (n + 2 - 2) ∗ ((stg a).view.loc (thr d L) ↦[(stg a).view.set]{fullShare} gb)) := by
    rw [Nat.add_sub_cancel]
    have e : (((outM L n).view.loc (thr d L) ↦[(outM L n).view.set]{fullShare} ((outM L n).view.writes (Elt F) f0 [⟨Rect.whole _, w⟩])) : sProp 𝕄)
        = oqPiece d L fx n := pointsTo_congr (out_written d L fx ar a n ga gb f0 w hw hl hr v)
    iintro ⟨H1, H2⟩
    isplitl [H1]
    · iapply (Entails.of_eq e); iexact H1
    · iexact H2
  iexists gb
  isplitl [H]
  · iapply (Transfers.Flight_mono countersEmb (thr d L) hD); iexact H
  · iexact R

/-- The result pieces outside the slots before trip `t`: those already written hold the row, the others some contents. -/
def oMix (t n : ℕ) : sProp 𝕄 := if n + 2 < 2 * t then oQ d L fx n else oP (F := F) d L n
theorem oMix_lt {t n : ℕ} (h : n + 2 < 2 * t) : oMix d L fx t n = oQ d L fx n := if_pos h
theorem oMix_ge {t n : ℕ} (h : ¬ n + 2 < 2 * t) : oMix d L fx t n = oP (F := F) d L n := if_neg h
theorem oMix_core (k : ℕ) : bigSep (oCore k) (oMix d L fx k) = bigSep (oCore k) (oMix d L fx (k + 1)) :=
  bigSep_congr fun n hn => by
    have hn' : n + 2 ≠ 2 * k ∧ n + 2 ≠ 2 * k + 1 ∧ n ≠ 2 * k ∧ n ≠ 2 * k + 1 := by
      simp only [oCore, Finset.mem_filter, Finset.mem_range] at hn; exact hn.2
    by_cases h : n + 2 < 2 * k
    · rw [oMix_lt d L fx h, oMix_lt d L fx (by omega)]
    · rw [oMix_ge d L fx h, oMix_ge d L fx (by omega)]
theorem oMix_zero : bigSep (oSet 0) (oMix d L fx 0) = bigSep (Finset.range 18) (oP (F := F) d L) := by
  rw [oSet_zero]; exact bigSep_congr fun n _ => oMix_ge d L fx (by omega)
theorem oMix_end : bigSep (oSet 8) (oMix d L fx 8) = bigSep (oSet 8) (oQ d L fx) :=
  bigSep_congr fun n hn => by
    have hn' : n < 18 ∧ n + 2 ≠ 16 ∧ n + 2 ≠ 17 := by simpa only [oSet, Finset.mem_filter, Finset.mem_range] using hn
    by_cases h : n + 2 < 2 * 8
    · exact oMix_lt d L fx h
    · rw [oMix_ge d L fx h, oP_neg (F := F) d L (by unfold valid; omega), oQ_neg d L fx (by unfold valid; omega)]

/-- The lane-copy loops: before trip `j` the first 16·j elements of the flat staging buffer are the staging row's. -/
def laneV0 (g4 : Buf (Elt F) ((a4).view.loc (thr d L))) (j : ℕ) (_ : PUnit) : sProp 𝕄 :=
  iprop(((a4).view.loc (thr d L) ↦{fullShare} g4) ∗ (∃ g, ((a6).view.loc (thr d L) ↦{fullShare} g) ∗ ⌜Lanes d L a4 a6 g4 g j⌝))
def laneV1 (g5 : Buf (Elt F) ((a5).view.loc (thr d L))) (j : ℕ) (_ : PUnit) : sProp 𝕄 :=
  iprop(((a5).view.loc (thr d L) ↦{fullShare} g5) ∗ (∃ g, ((a7).view.loc (thr d L) ↦{fullShare} g) ∗ ⌜Lanes d L a5 a7 g5 g j⌝))

def invV (t : ℕ) (_ : PUnit) : sProp 𝕄 :=
  iprop(Transfers.MayWaits (thr d L) (none : HIx 22) O
    ∗ (∃ W', ⌜∀ p ∈ W', p ∈ W ∨ p.2 = none⌝ ∗ owes (thr d L) O W')
    ∗ bigSep (xSet t) (xP d L fx) ∗ bigSep (oSet t) (oMix d L fx t)
    ∗ inSlotV d L fx a4 cc16_scratch4.sem (2 * t) ∗ outSlotV d L fx a6 cc16_scratch6.sem (2 * t)
    ∗ inSlotV d L fx a5 cc16_scratch5.sem (2 * t + 1) ∗ outSlotV d L fx a7 cc16_scratch7.sem (2 * t + 1))

/-- After the last trip nothing of the argument row is in a slot: the tile holds all its pieces. -/
theorem xRange_end : bigSep (xSet 8) (xP d L fx) ⊢ bigSep (Finset.range 18) (xP d L fx) := by
  rw [two_out (s := Finset.range 18) (a := 16) (b := 17) (by decide) (by decide) (by decide),
    show ((Finset.range 18).erase 16).erase 17 = xSet 8 by decide]
  iintro H
  isplitr; · iapply (Entails.of_eq (xP_neg d L fx (n := 16) (by unfold valid; omega)).symm); iempintro
  isplitr; · iapply (Entails.of_eq (xP_neg d L fx (n := 17) (by unfold valid; omega)).symm); iempintro
  iexact H
omit [FloatOps F] in
theorem oRange_end (Φ : ℕ → sProp 𝕄) : bigSep (Finset.range 18) Φ = iprop(Φ 14 ∗ Φ 15 ∗ bigSep (oSet 8) Φ) := by
  rw [two_out (s := Finset.range 18) (a := 14) (b := 15) (by decide) (by decide) (by decide),
    show ((Finset.range 18).erase 14).erase 15 = oSet 8 by decide]

/-- What the run starts from and ends with, beside an untouched rest `R`. -/
def runPre (R : sProp 𝕄) : sProp 𝕄 :=
    iprop(Transfers.MayWaits (thr d L) (none : HIx 22) O ∗ owes (thr d L) O W
        ∗ bigSep (Finset.range 18) (xP d L fx) ∗ bigSep (Finset.range 18) (oP (F := F) d L)
        ∗ (∃ g, (a4).view.loc (thr d L) ↦{fullShare} g) ∗ (∃ g, (a5).view.loc (thr d L) ↦{fullShare} g)
        ∗ (∃ g, (a6).view.loc (thr d L) ↦{fullShare} g) ∗ (∃ g, (a7).view.loc (thr d L) ↦{fullShare} g)
        ∗ semVal (thr d L, SemLoc.dma cc16_scratch4.sem) 0 ∗ semVal (thr d L, SemLoc.dma cc16_scratch5.sem) 0
        ∗ semVal (thr d L, SemLoc.dma cc16_scratch6.sem) 0 ∗ semVal (thr d L, SemLoc.dma cc16_scratch7.sem) 0 ∗ R)
def runPost (R : sProp 𝕄) : sProp 𝕄 :=
    iprop(bigSep (Finset.range 18) (xP d L fx) ∗ bigSep (Finset.range 18) (oQ d L fx)
            ∗ (∃ g, (a4).view.loc (thr d L) ↦{fullShare} g) ∗ (∃ g, (a5).view.loc (thr d L) ↦{fullShare} g)
            ∗ (∃ g, (a6).view.loc (thr d L) ↦{fullShare} g) ∗ (∃ g, (a7).view.loc (thr d L) ↦{fullShare} g)
            ∗ semVal (thr d L, SemLoc.dma cc16_scratch4.sem) 0 ∗ semVal (thr d L, SemLoc.dma cc16_scratch5.sem) 0
            ∗ semVal (thr d L, SemLoc.dma cc16_scratch6.sem) 0 ∗ semVal (thr d L, SemLoc.dma cc16_scratch7.sem) 0
            ∗ (∃ W', ⌜∀ p ∈ W', p ∈ W ∨ p.2 = none⌝ ∗ owes (thr d L) O W') ∗ R)

set_option maxHeartbeats 16000000 in
/-- The task's run: from its pieces of the argument row and of the result, the four staging buffers and the four
    semaphores at zero, to the same with every piece of the result holding the row's elements. -/
theorem tile_run (R : sProp 𝕄) :
    runPre d L O W fx R
      ⊢ wp frame (wpE (defs₀ (F := F)) 𝒱₀ (thr d L) none) Set.univ
          (cc16_sc_group L xtW (Memref.isWhole_whole _) oW (Memref.isWhole_whole _) a4 (Memref.isWhole_whole _) a5 (Memref.isWhole_whole _)
            a6 (Memref.isWhole_whole _) a7 (Memref.isWhole_whole _) cc16_scratch4 cc16_scratch5 cc16_scratch6 cc16_scratch7)
          fun _ => runPost d L O W fx R := by
  unfold runPre runPost
  have v0 : valid L 0 := Or.inl (by omega)
  have v1 : valid L 1 := Or.inl (by omega)
  have k16_h7 : k16_cond7 L = 1#1 := cond7_iff L
  iintro ⟨#Hmw, HO, HX, HOut, ⟨%g4, H4⟩, ⟨%g5, H5⟩, ⟨%g6, H6⟩, ⟨%g7, H7⟩, Hs8, Hs9, Hs10, Hs11, HR⟩
  ihave HX := (Entails.of_eq (xRange_split d L fx v0 v1)) $$ HX
  icases HX with ⟨X0, X1, HX⟩
  ihave X0 := (Entails.of_eq (in_congr d L (off_in0 L v0).symm (in_inb L _) (k16_off1_inb L 0) fx)) $$ X0
  ihave X1 := (Entails.of_eq (in_congr d L (off_in1 L v1).symm (in_inb L _) (k16_off1_inb L 1) fx)) $$ X1
  sl_unfold [cc16_sc_group]
  sl_exec
  ihave S8 := (fl_inV d L fx (off_in0 L v0) (k16_off1_inb L 0) v0 a4 cc16_scratch4.sem) $$ [Hs8]
  · iexists _, _
    isplitr
    rotate_left
    · iexact Hs8
    ipureintro; intro y; rfl
  ihave S9 := (fl_inV d L fx (off_in1 L v1) (k16_off1_inb L 1) v1 a5 cc16_scratch5.sem) $$ [Hs9]
  · iexists _, _
    isplitr
    rotate_left
    · iexact Hs9
    ipureintro; intro y; rfl
  sl_for (invV d L O W fx) $$ [HO HX HOut S8 S9 H6 H7 Hs10 Hs11]
  case region =>
    intro (k : Fin k16_t1_loop.trips) acc
    have hk : k.val < 8 := Nat.lt_of_lt_of_eq k.isLt trips1
    unfold invV
    iintro ⟨#Hmw, ⟨%W', %hW', HO⟩, HX, HOut, S8, S10, S9, S11⟩
    by_cases hk1 : 1 ≤ k.val
    · by_cases v3 : valid L (2 * k.val + 3)
      · -- the generic trip: both drains, both pieces worked, both next fetches issued
        have hk6 : k.val ≤ 6 := by unfold valid at v3; omega
        have k16_h1 : k16_cond1 k = 1#1 := (cond1_iff k).mpr (by omega)
        have k16_h2 : k16_cond2 L k = 1#1 := cond2_iff L k
        have k16_h3 : k16_cond3 L k = 1#1 := (cond3_iff L k).mpr (by omega)
        have k16_h4 : k16_cond4 k = 1#1 := (cond4_iff k).mpr (by omega)
        have k16_h5 : k16_cond5 L k = 1#1 := (cond5_iff L k).mpr (by first | (unfold valid big at *; omega) | (unfold big at *; omega) | omega)
        have k16_h6 : k16_cond6 L k = 1#1 := (cond6_iff L k).mpr (by first | (unfold valid big at *; omega) | (unfold big at *; omega) | omega)
        have v0 : valid L (2 * k.val) := by unfold valid big at *; omega
        have v1 : valid L (2 * k.val + 1) := by unfold valid big at *; omega
        have v2 : valid L (2 * k.val + 2) := by unfold valid big at *; omega
        have v3' : valid L (2 * k.val + 3) := by unfold valid big at *; omega
        have hm0 : 2 ≤ 2 * k.val ∧ valid L (2 * k.val - 2) := ⟨by omega, by unfold valid big at *; omega⟩
        have hm1 : 2 ≤ 2 * k.val + 1 ∧ valid L (2 * k.val + 1 - 2) := ⟨by omega, by unfold valid big at *; omega⟩
        ihave S8 := (Entails.of_eq (inSlotV_pos d L fx v0)) $$ S8
        icases S8 with ⟨%g4, %hin4, F8⟩
        ihave S9 := (Entails.of_eq (inSlotV_pos d L fx v1)) $$ S9
        icases S9 with ⟨%g5, %hin5, F9⟩
        ihave S10 := (Entails.of_eq (outSlotV_pos d L fx hm0)) $$ S10
        icases S10 with ⟨%g6, F10, R6⟩
        ihave S11 := (Entails.of_eq (outSlotV_pos d L fx hm1)) $$ S11
        icases S11 with ⟨%g7, F11, R7⟩
        ihave HX := (Entails.of_eq (xSet_out (xP d L fx) k.val hk)) $$ HX
        icases HX with ⟨X2, X3, HX⟩
        ihave X2 := (Entails.of_eq (xP_pos d L fx v2)) $$ X2
        ihave X2 := (Entails.of_eq (in_congr d L (off_6 L k v2).symm (in_inb L _) (k16_off6_inb L k k16_h3) fx)) $$ X2
        ihave X3 := (Entails.of_eq (xP_pos d L fx v3')) $$ X3
        ihave X3 := (Entails.of_eq (in_congr d L (off_11 L k v3').symm (in_inb L _) (k16_off11_inb L k k16_h6) fx)) $$ X3
        ihave HOut := (Entails.of_eq (oSet_out (oMix d L fx k.val) k.val hk)) $$ HOut
        icases HOut with ⟨Y0, Y1, HOut⟩
        ihave Y0 := (Entails.of_eq ((oMix_ge d L fx (t := k.val) (n := 2 * k.val) (by omega)).trans (oP_pos (F := F) d L v0))) $$ Y0
        icases Y0 with ⟨%f0, Y0⟩
        ihave Y0 := (Entails.of_eq (out_congr d L (off_5 L k v0).symm (out_inb L _) (k16_off5_inb L k k16_h2) f0)) $$ Y0
        ihave Y1 := (Entails.of_eq ((oMix_ge d L fx (t := k.val) (n := 2 * k.val + 1) (by omega)).trans (oP_pos (F := F) d L v1))) $$ Y1
        icases Y1 with ⟨%f1, Y1⟩
        ihave Y1 := (Entails.of_eq (out_congr d L (off_10 L k v1).symm (out_inb L _) (k16_off10_inb L k k16_h5) f1)) $$ Y1
        sl_exec
        sl_for (laneV0 d L g4) $$ [F8_dst R6]
        case region =>
          intro (j : Fin k16_t2_loop.trips) _
          unfold laneV0
          iintro ⟨HA, %g, HB, %hl⟩
          sl_exec
          sl_step
          isplitl [HA]; · iexact HA
          iexists _; isplitl [HB]; · iexact HB
          ipureintro; exact lanes_step d L a4 a6 g4 g j _ _ hl
        · unfold laneV0
          isplitl [F8_dst]; · iexact F8_dst
          iexists _; isplitl [R6]; · iexact R6
          ipureintro; exact lanes_zero d L a4 a6 g4 _
        iintro %_ HI
        unfold laneV0
        icases HI with ⟨H4, %g6', H6, %hl6⟩
        have hl6 : Lanes d L a4 a6 g4 g6' 200 := Eq.mp (congrArg (Lanes d L a4 a6 g4 g6') trips2) hl6
        sl_exec
        sl_for (laneV1 d L g5) $$ [F9_dst R7]
        case region =>
          intro (j : Fin k16_t3_loop.trips) _
          unfold laneV1
          iintro ⟨HA, %g, HB, %hl⟩
          sl_exec
          sl_step
          isplitl [HA]; · iexact HA
          iexists _; isplitl [HB]; · iexact HB
          ipureintro; exact lanes_step' d L a5 a7 g5 g j _ _ hl
        · unfold laneV1
          isplitl [F9_dst]; · iexact F9_dst
          iexists _; isplitl [R7]; · iexact R7
          ipureintro; exact lanes_zero d L a5 a7 g5 _
        iintro %_ HI
        unfold laneV1
        icases HI with ⟨H5, %g7', H7, %hl7⟩
        have hl7 : Lanes d L a5 a7 g5 g7' 200 := Eq.mp (congrArg (Lanes d L a5 a7 g5 g7') trips3) hl7
        sl_exec
        sl_step
        isplitr; · iexact Hmw
        isplitl [HO]
        · iexists _; isplitr
          rotate_left
          · iexact HO
          ipureintro; intro p hp
          rcases Finset.mem_insert.mp hp with rfl | hp
          · exact .inr rfl
          rcases Finset.mem_insert.mp hp with rfl | hp
          · exact .inr rfl
          rcases Finset.mem_insert.mp hp with rfl | hp
          · exact .inr rfl
          rcases Finset.mem_insert.mp hp with rfl | hp
          · exact .inr rfl
          exact hW' p hp
        isplitl [HX F8_src F9_src]
        · iapply (Entails.of_eq (xSet_in (xP d L fx) k.val hk).symm)
          isplitl [F8_src]; · iapply (Entails.of_eq (xP_pos d L fx v0).symm); iexact F8_src
          isplitl [F9_src]; · iapply (Entails.of_eq (xP_pos d L fx v1).symm); iexact F9_src
          iexact HX
        isplitl [HOut F10_dst F11_dst]
        · iapply (Entails.of_eq (oSet_in (oMix d L fx (k.val + 1)) k.val hk (by omega)).symm)
          isplitl [F10_dst]; · iapply (Entails.of_eq ((oMix_lt d L fx (t := k.val + 1) (n := 2 * k.val - 2) (by omega)).trans (oQ_pos d L fx hm0.2)).symm); iexact F10_dst
          isplitl [F11_dst]
          · iapply (Entails.of_eq ((oMix_lt d L fx (t := k.val + 1) (n := 2 * k.val - 1) (by omega)).trans (oQ_pos d L fx (n := 2 * k.val - 1) (by have := hm1.2; rwa [show 2 * k.val + 1 - 2 = 2 * k.val - 1 by omega] at this))).symm)
            iapply (Entails.of_eq (congrArg (oqPiece d L fx) (show 2 * k.val + 1 - 2 = 2 * k.val - 1 by omega))); iexact F11_dst
          iapply (Entails.of_eq (oMix_core d L fx k.val)); iexact HOut
        isplitl [F8]
        · iapply (Entails.of_eq (congrArg (inSlotV d L fx a4 cc16_scratch4.sem) (show 2 * k.val + 2 = 2 * (k.val + 1) by ring)))
          iapply (fl_inV d L fx (off_6 L k v2) (k16_off6_inb L k k16_h3) v2 a4 cc16_scratch4.sem); iexists _, _
          isplitr
          rotate_left
          · iexact F8
          ipureintro; intro y; rfl
        isplitl [F10 H6]
        · iapply (Entails.of_eq (congrArg (outSlotV d L fx a6 cc16_scratch6.sem) (show 2 * k.val + 2 = 2 * (k.val + 1) by ring)))
          iapply (fl_outV d L fx (off_5 L k v0) (k16_off5_inb L k k16_h2) v0 a4 a6 cc16_scratch6.sem f0 g4 g6' hl6 hin4); iexists _
          isplitr
          rotate_left
          · isplitl [F10]; · iexact F10
            iexact H6
          ipureintro; intro y; rfl
        isplitl [F9]
        · iapply (Entails.of_eq (congrArg (inSlotV d L fx a5 cc16_scratch5.sem) (show 2 * k.val + 3 = 2 * (k.val + 1) + 1 by ring)))
          iapply (fl_inV d L fx (off_11 L k v3') (k16_off11_inb L k k16_h6) v3' a5 cc16_scratch5.sem); iexists _, _
          isplitr
          rotate_left
          · iexact F9
          ipureintro; intro y; rfl
        · iapply (Entails.of_eq (congrArg (outSlotV d L fx a7 cc16_scratch7.sem) (show 2 * k.val + 1 + 2 = 2 * (k.val + 1) + 1 by ring)))
          iapply (fl_outV d L fx (off_10 L k v1) (k16_off10_inb L k k16_h5) v1 a5 a7 cc16_scratch7.sem f1 g5 g7' hl7 hin5); iexists _
          isplitr
          rotate_left
          · isplitl [F11]; · iexact F11
            iexact H7
          ipureintro; intro y; rfl
      · by_cases h6 : k.val = 6
        · have hb : ¬ big L := fun hb => v3 (Or.inr ⟨by omega, hb⟩)
          -- trip 6 of a tile with fifteen pieces: no sixteenth piece to fetch
          have k16_h1 : k16_cond1 k = 1#1 := (cond1_iff k).mpr (by omega)
          have k16_h2 : k16_cond2 L k = 1#1 := cond2_iff L k
          have k16_h3 : k16_cond3 L k = 1#1 := (cond3_iff L k).mpr (by omega)
          have k16_h4 : k16_cond4 k = 1#1 := (cond4_iff k).mpr (by omega)
          have k16_h5 : k16_cond5 L k = 1#1 := (cond5_iff L k).mpr (by first | (unfold valid big at *; omega) | (unfold big at *; omega) | omega)
          have k16_h6 : ¬ k16_cond6 L k = 1#1 := fun h => absurd ((cond6_iff L k).mp h) (by first | (unfold valid big at *; omega) | (unfold big at *; omega) | omega)
          have v0 : valid L (2 * k.val) := by unfold valid big at *; omega
          have v1 : valid L (2 * k.val + 1) := by unfold valid big at *; omega
          have v2 : valid L (2 * k.val + 2) := by unfold valid big at *; omega
          have v3' : ¬ valid L (2 * k.val + 3) := by unfold valid big at *; omega
          have hm0 : 2 ≤ 2 * k.val ∧ valid L (2 * k.val - 2) := ⟨by omega, by unfold valid big at *; omega⟩
          have hm1 : 2 ≤ 2 * k.val + 1 ∧ valid L (2 * k.val + 1 - 2) := ⟨by omega, by unfold valid big at *; omega⟩
          ihave S8 := (Entails.of_eq (inSlotV_pos d L fx v0)) $$ S8
          icases S8 with ⟨%g4, %hin4, F8⟩
          ihave S9 := (Entails.of_eq (inSlotV_pos d L fx v1)) $$ S9
          icases S9 with ⟨%g5, %hin5, F9⟩
          ihave S10 := (Entails.of_eq (outSlotV_pos d L fx hm0)) $$ S10
          icases S10 with ⟨%g6, F10, R6⟩
          ihave S11 := (Entails.of_eq (outSlotV_pos d L fx hm1)) $$ S11
          icases S11 with ⟨%g7, F11, R7⟩
          ihave HX := (Entails.of_eq (xSet_out (xP d L fx) k.val hk)) $$ HX
          icases HX with ⟨X2, -, HX⟩
          ihave X2 := (Entails.of_eq (xP_pos d L fx v2)) $$ X2
          ihave X2 := (Entails.of_eq (in_congr d L (off_6 L k v2).symm (in_inb L _) (k16_off6_inb L k k16_h3) fx)) $$ X2
          ihave HOut := (Entails.of_eq (oSet_out (oMix d L fx k.val) k.val hk)) $$ HOut
          icases HOut with ⟨Y0, Y1, HOut⟩
          ihave Y0 := (Entails.of_eq ((oMix_ge d L fx (t := k.val) (n := 2 * k.val) (by omega)).trans (oP_pos (F := F) d L v0))) $$ Y0
          icases Y0 with ⟨%f0, Y0⟩
          ihave Y0 := (Entails.of_eq (out_congr d L (off_5 L k v0).symm (out_inb L _) (k16_off5_inb L k k16_h2) f0)) $$ Y0
          ihave Y1 := (Entails.of_eq ((oMix_ge d L fx (t := k.val) (n := 2 * k.val + 1) (by omega)).trans (oP_pos (F := F) d L v1))) $$ Y1
          icases Y1 with ⟨%f1, Y1⟩
          ihave Y1 := (Entails.of_eq (out_congr d L (off_10 L k v1).symm (out_inb L _) (k16_off10_inb L k k16_h5) f1)) $$ Y1
          sl_exec
          sl_for (laneV0 d L g4) $$ [F8_dst R6]
          case region =>
            intro (j : Fin k16_t2_loop.trips) _
            unfold laneV0
            iintro ⟨HA, %g, HB, %hl⟩
            sl_exec
            sl_step
            isplitl [HA]; · iexact HA
            iexists _; isplitl [HB]; · iexact HB
            ipureintro; exact lanes_step d L a4 a6 g4 g j _ _ hl
          · unfold laneV0
            isplitl [F8_dst]; · iexact F8_dst
            iexists _; isplitl [R6]; · iexact R6
            ipureintro; exact lanes_zero d L a4 a6 g4 _
          iintro %_ HI
          unfold laneV0
          icases HI with ⟨H4, %g6', H6, %hl6⟩
          have hl6 : Lanes d L a4 a6 g4 g6' 200 := Eq.mp (congrArg (Lanes d L a4 a6 g4 g6') trips2) hl6
          sl_exec
          sl_for (laneV1 d L g5) $$ [F9_dst R7]
          case region =>
            intro (j : Fin k16_t3_loop.trips) _
            unfold laneV1
            iintro ⟨HA, %g, HB, %hl⟩
            sl_exec
            sl_step
            isplitl [HA]; · iexact HA
            iexists _; isplitl [HB]; · iexact HB
            ipureintro; exact lanes_step' d L a5 a7 g5 g j _ _ hl
          · unfold laneV1
            isplitl [F9_dst]; · iexact F9_dst
            iexists _; isplitl [R7]; · iexact R7
            ipureintro; exact lanes_zero d L a5 a7 g5 _
          iintro %_ HI
          unfold laneV1
          icases HI with ⟨H5, %g7', H7, %hl7⟩
          have hl7 : Lanes d L a5 a7 g5 g7' 200 := Eq.mp (congrArg (Lanes d L a5 a7 g5 g7') trips3) hl7
          sl_exec
          sl_step
          isplitr; · iexact Hmw
          isplitl [HO]
          · iexists _; isplitr
            rotate_left
            · iexact HO
            ipureintro; intro p hp
            rcases Finset.mem_insert.mp hp with rfl | hp
            · exact .inr rfl
            rcases Finset.mem_insert.mp hp with rfl | hp
            · exact .inr rfl
            rcases Finset.mem_insert.mp hp with rfl | hp
            · exact .inr rfl
            rcases Finset.mem_insert.mp hp with rfl | hp
            · exact .inr rfl
            exact hW' p hp
          isplitl [HX F8_src F9_src]
          · iapply (Entails.of_eq (xSet_in (xP d L fx) k.val hk).symm)
            isplitl [F8_src]; · iapply (Entails.of_eq (xP_pos d L fx v0).symm); iexact F8_src
            isplitl [F9_src]; · iapply (Entails.of_eq (xP_pos d L fx v1).symm); iexact F9_src
            iexact HX
          isplitl [HOut F10_dst F11_dst]
          · iapply (Entails.of_eq (oSet_in (oMix d L fx (k.val + 1)) k.val hk (by omega)).symm)
            isplitl [F10_dst]; · iapply (Entails.of_eq ((oMix_lt d L fx (t := k.val + 1) (n := 2 * k.val - 2) (by omega)).trans (oQ_pos d L fx hm0.2)).symm); iexact F10_dst
            isplitl [F11_dst]
            · iapply (Entails.of_eq ((oMix_lt d L fx (t := k.val + 1) (n := 2 * k.val - 1) (by omega)).trans (oQ_pos d L fx (n := 2 * k.val - 1) (by have := hm1.2; rwa [show 2 * k.val + 1 - 2 = 2 * k.val - 1 by omega] at this))).symm)
              iapply (Entails.of_eq (congrArg (oqPiece d L fx) (show 2 * k.val + 1 - 2 = 2 * k.val - 1 by omega))); iexact F11_dst
            iapply (Entails.of_eq (oMix_core d L fx k.val)); iexact HOut
          isplitl [F8]
          · iapply (Entails.of_eq (congrArg (inSlotV d L fx a4 cc16_scratch4.sem) (show 2 * k.val + 2 = 2 * (k.val + 1) by ring)))
            iapply (fl_inV d L fx (off_6 L k v2) (k16_off6_inb L k k16_h3) v2 a4 cc16_scratch4.sem); iexists _, _
            isplitr
            rotate_left
            · iexact F8
            ipureintro; intro y; rfl
          isplitl [F10 H6]
          · iapply (Entails.of_eq (congrArg (outSlotV d L fx a6 cc16_scratch6.sem) (show 2 * k.val + 2 = 2 * (k.val + 1) by ring)))
            iapply (fl_outV d L fx (off_5 L k v0) (k16_off5_inb L k k16_h2) v0 a4 a6 cc16_scratch6.sem f0 g4 g6' hl6 hin4); iexists _
            isplitr
            rotate_left
            · isplitl [F10]; · iexact F10
              iexact H6
            ipureintro; intro y; rfl
          isplitl [H5 F9]
          · iapply (Entails.of_eq (congrArg (inSlotV d L fx a5 cc16_scratch5.sem) (show 2 * k.val + 3 = 2 * (k.val + 1) + 1 by ring)))
            iapply (Entails.of_eq (inSlotV_neg d L fx v3').symm)
            isplitl [H5]; · iexists _; iexact H5
            iexact F9
          · iapply (Entails.of_eq (congrArg (outSlotV d L fx a7 cc16_scratch7.sem) (show 2 * k.val + 1 + 2 = 2 * (k.val + 1) + 1 by ring)))
            iapply (fl_outV d L fx (off_10 L k v1) (k16_off10_inb L k k16_h5) v1 a5 a7 cc16_scratch7.sem f1 g5 g7' hl7 hin5); iexists _
            isplitr
            rotate_left
            · isplitl [F11]; · iexact F11
              iexact H7
            ipureintro; intro y; rfl
        · have h7 : k.val = 7 := by unfold valid at v3; omega
          by_cases hb : big L
          · -- the last trip of a tile with sixteen pieces: nothing more to fetch
            have k16_h1 : k16_cond1 k = 1#1 := (cond1_iff k).mpr (by omega)
            have k16_h2 : k16_cond2 L k = 1#1 := cond2_iff L k
            have k16_h3 : ¬ k16_cond3 L k = 1#1 := fun h => absurd ((cond3_iff L k).mp h) (by omega)
            have k16_h4 : k16_cond4 k = 1#1 := (cond4_iff k).mpr (by omega)
            have k16_h5 : k16_cond5 L k = 1#1 := (cond5_iff L k).mpr (by first | (unfold valid big at *; omega) | (unfold big at *; omega) | omega)
            have k16_h6 : ¬ k16_cond6 L k = 1#1 := fun h => absurd ((cond6_iff L k).mp h) (by first | (unfold valid big at *; omega) | (unfold big at *; omega) | omega)
            have v0 : valid L (2 * k.val) := by unfold valid big at *; omega
            have v1 : valid L (2 * k.val + 1) := by unfold valid big at *; omega
            have v2 : ¬ valid L (2 * k.val + 2) := by unfold valid big at *; omega
            have v3' : ¬ valid L (2 * k.val + 3) := by unfold valid big at *; omega
            have hm0 : 2 ≤ 2 * k.val ∧ valid L (2 * k.val - 2) := ⟨by omega, by unfold valid big at *; omega⟩
            have hm1 : 2 ≤ 2 * k.val + 1 ∧ valid L (2 * k.val + 1 - 2) := ⟨by omega, by unfold valid big at *; omega⟩
            ihave S8 := (Entails.of_eq (inSlotV_pos d L fx v0)) $$ S8
            icases S8 with ⟨%g4, %hin4, F8⟩
            ihave S9 := (Entails.of_eq (inSlotV_pos d L fx v1)) $$ S9
            icases S9 with ⟨%g5, %hin5, F9⟩
            ihave S10 := (Entails.of_eq (outSlotV_pos d L fx hm0)) $$ S10
            icases S10 with ⟨%g6, F10, R6⟩
            ihave S11 := (Entails.of_eq (outSlotV_pos d L fx hm1)) $$ S11
            icases S11 with ⟨%g7, F11, R7⟩
            ihave HX := (Entails.of_eq (xSet_out (xP d L fx) k.val hk)) $$ HX
            icases HX with ⟨-, -, HX⟩
            ihave HOut := (Entails.of_eq (oSet_out (oMix d L fx k.val) k.val hk)) $$ HOut
            icases HOut with ⟨Y0, Y1, HOut⟩
            ihave Y0 := (Entails.of_eq ((oMix_ge d L fx (t := k.val) (n := 2 * k.val) (by omega)).trans (oP_pos (F := F) d L v0))) $$ Y0
            icases Y0 with ⟨%f0, Y0⟩
            ihave Y0 := (Entails.of_eq (out_congr d L (off_5 L k v0).symm (out_inb L _) (k16_off5_inb L k k16_h2) f0)) $$ Y0
            ihave Y1 := (Entails.of_eq ((oMix_ge d L fx (t := k.val) (n := 2 * k.val + 1) (by omega)).trans (oP_pos (F := F) d L v1))) $$ Y1
            icases Y1 with ⟨%f1, Y1⟩
            ihave Y1 := (Entails.of_eq (out_congr d L (off_10 L k v1).symm (out_inb L _) (k16_off10_inb L k k16_h5) f1)) $$ Y1
            sl_exec
            sl_for (laneV0 d L g4) $$ [F8_dst R6]
            case region =>
              intro (j : Fin k16_t2_loop.trips) _
              unfold laneV0
              iintro ⟨HA, %g, HB, %hl⟩
              sl_exec
              sl_step
              isplitl [HA]; · iexact HA
              iexists _; isplitl [HB]; · iexact HB
              ipureintro; exact lanes_step d L a4 a6 g4 g j _ _ hl
            · unfold laneV0
              isplitl [F8_dst]; · iexact F8_dst
              iexists _; isplitl [R6]; · iexact R6
              ipureintro; exact lanes_zero d L a4 a6 g4 _
            iintro %_ HI
            unfold laneV0
            icases HI with ⟨H4, %g6', H6, %hl6⟩
            have hl6 : Lanes d L a4 a6 g4 g6' 200 := Eq.mp (congrArg (Lanes d L a4 a6 g4 g6') trips2) hl6
            sl_exec
            sl_for (laneV1 d L g5) $$ [F9_dst R7]
            case region =>
              intro (j : Fin k16_t3_loop.trips) _
              unfold laneV1
              iintro ⟨HA, %g, HB, %hl⟩
              sl_exec
              sl_step
              isplitl [HA]; · iexact HA
              iexists _; isplitl [HB]; · iexact HB
              ipureintro; exact lanes_step' d L a5 a7 g5 g j _ _ hl
            · unfold laneV1
              isplitl [F9_dst]; · iexact F9_dst
              iexists _; isplitl [R7]; · iexact R7
              ipureintro; exact lanes_zero d L a5 a7 g5 _
            iintro %_ HI
            unfold laneV1
            icases HI with ⟨H5, %g7', H7, %hl7⟩
            have hl7 : Lanes d L a5 a7 g5 g7' 200 := Eq.mp (congrArg (Lanes d L a5 a7 g5 g7') trips3) hl7
            sl_exec
            sl_step
            isplitr; · iexact Hmw
            isplitl [HO]
            · iexists _; isplitr
              rotate_left
              · iexact HO
              ipureintro; intro p hp
              rcases Finset.mem_insert.mp hp with rfl | hp
              · exact .inr rfl
              rcases Finset.mem_insert.mp hp with rfl | hp
              · exact .inr rfl
              rcases Finset.mem_insert.mp hp with rfl | hp
              · exact .inr rfl
              rcases Finset.mem_insert.mp hp with rfl | hp
              · exact .inr rfl
              exact hW' p hp
            isplitl [HX F8_src F9_src]
            · iapply (Entails.of_eq (xSet_in (xP d L fx) k.val hk).symm)
              isplitl [F8_src]; · iapply (Entails.of_eq (xP_pos d L fx v0).symm); iexact F8_src
              isplitl [F9_src]; · iapply (Entails.of_eq (xP_pos d L fx v1).symm); iexact F9_src
              iexact HX
            isplitl [HOut F10_dst F11_dst]
            · iapply (Entails.of_eq (oSet_in (oMix d L fx (k.val + 1)) k.val hk (by omega)).symm)
              isplitl [F10_dst]; · iapply (Entails.of_eq ((oMix_lt d L fx (t := k.val + 1) (n := 2 * k.val - 2) (by omega)).trans (oQ_pos d L fx hm0.2)).symm); iexact F10_dst
              isplitl [F11_dst]
              · iapply (Entails.of_eq ((oMix_lt d L fx (t := k.val + 1) (n := 2 * k.val - 1) (by omega)).trans (oQ_pos d L fx (n := 2 * k.val - 1) (by have := hm1.2; rwa [show 2 * k.val + 1 - 2 = 2 * k.val - 1 by omega] at this))).symm)
                iapply (Entails.of_eq (congrArg (oqPiece d L fx) (show 2 * k.val + 1 - 2 = 2 * k.val - 1 by omega))); iexact F11_dst
              iapply (Entails.of_eq (oMix_core d L fx k.val)); iexact HOut
            isplitl [H4 F8]
            · iapply (Entails.of_eq (congrArg (inSlotV d L fx a4 cc16_scratch4.sem) (show 2 * k.val + 2 = 2 * (k.val + 1) by ring)))
              iapply (Entails.of_eq (inSlotV_neg d L fx v2).symm)
              isplitl [H4]; · iexists _; iexact H4
              iexact F8
            isplitl [F10 H6]
            · iapply (Entails.of_eq (congrArg (outSlotV d L fx a6 cc16_scratch6.sem) (show 2 * k.val + 2 = 2 * (k.val + 1) by ring)))
              iapply (fl_outV d L fx (off_5 L k v0) (k16_off5_inb L k k16_h2) v0 a4 a6 cc16_scratch6.sem f0 g4 g6' hl6 hin4); iexists _
              isplitr
              rotate_left
              · isplitl [F10]; · iexact F10
                iexact H6
              ipureintro; intro y; rfl
            isplitl [H5 F9]
            · iapply (Entails.of_eq (congrArg (inSlotV d L fx a5 cc16_scratch5.sem) (show 2 * k.val + 3 = 2 * (k.val + 1) + 1 by ring)))
              iapply (Entails.of_eq (inSlotV_neg d L fx v3').symm)
              isplitl [H5]; · iexists _; iexact H5
              iexact F9
            · iapply (Entails.of_eq (congrArg (outSlotV d L fx a7 cc16_scratch7.sem) (show 2 * k.val + 1 + 2 = 2 * (k.val + 1) + 1 by ring)))
              iapply (fl_outV d L fx (off_10 L k v1) (k16_off10_inb L k k16_h5) v1 a5 a7 cc16_scratch7.sem f1 g5 g7' hl7 hin5); iexists _
              isplitr
              rotate_left
              · isplitl [F11]; · iexact F11
                iexact H7
              ipureintro; intro y; rfl
          · -- the last trip of a tile with fifteen pieces: the second slot only drains
            have k16_h1 : k16_cond1 k = 1#1 := (cond1_iff k).mpr (by omega)
            have k16_h2 : k16_cond2 L k = 1#1 := cond2_iff L k
            have k16_h3 : ¬ k16_cond3 L k = 1#1 := fun h => absurd ((cond3_iff L k).mp h) (by omega)
            have k16_h4 : k16_cond4 k = 1#1 := (cond4_iff k).mpr (by omega)
            have k16_h5 : ¬ k16_cond5 L k = 1#1 := fun h => absurd ((cond5_iff L k).mp h) (by first | (unfold valid big at *; omega) | (unfold big at *; omega) | omega)
            have k16_h6 : ¬ k16_cond6 L k = 1#1 := fun h => absurd ((cond6_iff L k).mp h) (by first | (unfold valid big at *; omega) | (unfold big at *; omega) | omega)
            have v0 : valid L (2 * k.val) := by unfold valid big at *; omega
            have v1 : ¬ valid L (2 * k.val + 1) := by unfold valid big at *; omega
            have v2 : ¬ valid L (2 * k.val + 2) := by unfold valid big at *; omega
            have v3' : ¬ valid L (2 * k.val + 3) := by unfold valid big at *; omega
            have hm0 : 2 ≤ 2 * k.val ∧ valid L (2 * k.val - 2) := ⟨by omega, by unfold valid big at *; omega⟩
            have hm1 : 2 ≤ 2 * k.val + 1 ∧ valid L (2 * k.val + 1 - 2) := ⟨by omega, by unfold valid big at *; omega⟩
            ihave S8 := (Entails.of_eq (inSlotV_pos d L fx v0)) $$ S8
            icases S8 with ⟨%g4, %hin4, F8⟩
            ihave S9 := (Entails.of_eq (inSlotV_neg d L fx v1)) $$ S9
            icases S9 with ⟨⟨%g5, H5⟩, F9⟩
            ihave S10 := (Entails.of_eq (outSlotV_pos d L fx hm0)) $$ S10
            icases S10 with ⟨%g6, F10, R6⟩
            ihave S11 := (Entails.of_eq (outSlotV_pos d L fx hm1)) $$ S11
            icases S11 with ⟨%g7, F11, R7⟩
            ihave HX := (Entails.of_eq (xSet_out (xP d L fx) k.val hk)) $$ HX
            icases HX with ⟨-, -, HX⟩
            ihave HOut := (Entails.of_eq (oSet_out (oMix d L fx k.val) k.val hk)) $$ HOut
            icases HOut with ⟨Y0, -, HOut⟩
            ihave Y0 := (Entails.of_eq ((oMix_ge d L fx (t := k.val) (n := 2 * k.val) (by omega)).trans (oP_pos (F := F) d L v0))) $$ Y0
            icases Y0 with ⟨%f0, Y0⟩
            ihave Y0 := (Entails.of_eq (out_congr d L (off_5 L k v0).symm (out_inb L _) (k16_off5_inb L k k16_h2) f0)) $$ Y0
            sl_exec
            sl_for (laneV0 d L g4) $$ [F8_dst R6]
            case region =>
              intro (j : Fin k16_t2_loop.trips) _
              unfold laneV0
              iintro ⟨HA, %g, HB, %hl⟩
              sl_exec
              sl_step
              isplitl [HA]; · iexact HA
              iexists _; isplitl [HB]; · iexact HB
              ipureintro; exact lanes_step d L a4 a6 g4 g j _ _ hl
            · unfold laneV0
              isplitl [F8_dst]; · iexact F8_dst
              iexists _; isplitl [R6]; · iexact R6
              ipureintro; exact lanes_zero d L a4 a6 g4 _
            iintro %_ HI
            unfold laneV0
            icases HI with ⟨H4, %g6', H6, %hl6⟩
            have hl6 : Lanes d L a4 a6 g4 g6' 200 := Eq.mp (congrArg (Lanes d L a4 a6 g4 g6') trips2) hl6
            sl_exec
            sl_step
            isplitr; · iexact Hmw
            isplitl [HO]
            · iexists _; isplitr
              rotate_left
              · iexact HO
              ipureintro; intro p hp
              rcases Finset.mem_insert.mp hp with rfl | hp
              · exact .inr rfl
              rcases Finset.mem_insert.mp hp with rfl | hp
              · exact .inr rfl
              rcases Finset.mem_insert.mp hp with rfl | hp
              · exact .inr rfl
              exact hW' p hp
            isplitl [HX F8_src]
            · iapply (Entails.of_eq (xSet_in (xP d L fx) k.val hk).symm)
              isplitl [F8_src]; · iapply (Entails.of_eq (xP_pos d L fx v0).symm); iexact F8_src
              isplitr; · iapply (Entails.of_eq (xP_neg d L fx v1).symm); iempintro
              iexact HX
            isplitl [HOut F10_dst F11_dst]
            · iapply (Entails.of_eq (oSet_in (oMix d L fx (k.val + 1)) k.val hk (by omega)).symm)
              isplitl [F10_dst]; · iapply (Entails.of_eq ((oMix_lt d L fx (t := k.val + 1) (n := 2 * k.val - 2) (by omega)).trans (oQ_pos d L fx hm0.2)).symm); iexact F10_dst
              isplitl [F11_dst]
              · iapply (Entails.of_eq ((oMix_lt d L fx (t := k.val + 1) (n := 2 * k.val - 1) (by omega)).trans (oQ_pos d L fx (n := 2 * k.val - 1) (by have := hm1.2; rwa [show 2 * k.val + 1 - 2 = 2 * k.val - 1 by omega] at this))).symm)
                iapply (Entails.of_eq (congrArg (oqPiece d L fx) (show 2 * k.val + 1 - 2 = 2 * k.val - 1 by omega))); iexact F11_dst
              iapply (Entails.of_eq (oMix_core d L fx k.val)); iexact HOut
            isplitl [H4 F8]
            · iapply (Entails.of_eq (congrArg (inSlotV d L fx a4 cc16_scratch4.sem) (show 2 * k.val + 2 = 2 * (k.val + 1) by ring)))
              iapply (Entails.of_eq (inSlotV_neg d L fx v2).symm)
              isplitl [H4]; · iexists _; iexact H4
              iexact F8
            isplitl [F10 H6]
            · iapply (Entails.of_eq (congrArg (outSlotV d L fx a6 cc16_scratch6.sem) (show 2 * k.val + 2 = 2 * (k.val + 1) by ring)))
              iapply (fl_outV d L fx (off_5 L k v0) (k16_off5_inb L k k16_h2) v0 a4 a6 cc16_scratch6.sem f0 g4 g6' hl6 hin4); iexists _
              isplitr
              rotate_left
              · isplitl [F10]; · iexact F10
                iexact H6
              ipureintro; intro y; rfl
            isplitl [H5 F9]
            · iapply (Entails.of_eq (congrArg (inSlotV d L fx a5 cc16_scratch5.sem) (show 2 * k.val + 3 = 2 * (k.val + 1) + 1 by ring)))
              iapply (Entails.of_eq (inSlotV_neg d L fx v3').symm)
              isplitl [H5]; · iexists _; iexact H5
              iexact F9
            · iapply (Entails.of_eq (outSlotV_neg d L fx (m := 2 * (k.val + 1) + 1) (by intro h; apply v1; have := h.2; rwa [show 2 * (k.val + 1) + 1 - 2 = 2 * k.val + 1 by omega] at this)).symm)
              isplitl [R7]; · iexists _; iexact R7
              iexact F11
    · have hk0 : k.val = 0 := by omega
      -- the first trip: nothing to drain
      have k16_h1 : ¬ k16_cond1 k = 1#1 := fun h => absurd ((cond1_iff k).mp h) (by omega)
      have k16_h2 : k16_cond2 L k = 1#1 := cond2_iff L k
      have k16_h3 : k16_cond3 L k = 1#1 := (cond3_iff L k).mpr (by omega)
      have k16_h4 : ¬ k16_cond4 k = 1#1 := fun h => absurd ((cond4_iff k).mp h) (by omega)
      have k16_h5 : k16_cond5 L k = 1#1 := (cond5_iff L k).mpr (by first | (unfold valid big at *; omega) | (unfold big at *; omega) | omega)
      have k16_h6 : k16_cond6 L k = 1#1 := (cond6_iff L k).mpr (by first | (unfold valid big at *; omega) | (unfold big at *; omega) | omega)
      have v0 : valid L (2 * k.val) := by unfold valid big at *; omega
      have v1 : valid L (2 * k.val + 1) := by unfold valid big at *; omega
      have v2 : valid L (2 * k.val + 2) := by unfold valid big at *; omega
      have v3' : valid L (2 * k.val + 3) := by unfold valid big at *; omega
      have hm0 : ¬ (2 ≤ 2 * k.val ∧ valid L (2 * k.val - 2)) := by omega
      have hm1 : ¬ (2 ≤ 2 * k.val + 1 ∧ valid L (2 * k.val + 1 - 2)) := by omega
      ihave S8 := (Entails.of_eq (inSlotV_pos d L fx v0)) $$ S8
      icases S8 with ⟨%g4, %hin4, F8⟩
      ihave S9 := (Entails.of_eq (inSlotV_pos d L fx v1)) $$ S9
      icases S9 with ⟨%g5, %hin5, F9⟩
      ihave S10 := (Entails.of_eq (outSlotV_neg d L fx hm0)) $$ S10
      icases S10 with ⟨⟨%g6, R6⟩, F10⟩
      ihave S11 := (Entails.of_eq (outSlotV_neg d L fx hm1)) $$ S11
      icases S11 with ⟨⟨%g7, R7⟩, F11⟩
      ihave HX := (Entails.of_eq (xSet_out (xP d L fx) k.val hk)) $$ HX
      icases HX with ⟨X2, X3, HX⟩
      ihave X2 := (Entails.of_eq (xP_pos d L fx v2)) $$ X2
      ihave X2 := (Entails.of_eq (in_congr d L (off_6 L k v2).symm (in_inb L _) (k16_off6_inb L k k16_h3) fx)) $$ X2
      ihave X3 := (Entails.of_eq (xP_pos d L fx v3')) $$ X3
      ihave X3 := (Entails.of_eq (in_congr d L (off_11 L k v3').symm (in_inb L _) (k16_off11_inb L k k16_h6) fx)) $$ X3
      ihave HOut := (Entails.of_eq (oSet_out (oMix d L fx k.val) k.val hk)) $$ HOut
      icases HOut with ⟨Y0, Y1, HOut⟩
      ihave Y0 := (Entails.of_eq ((oMix_ge d L fx (t := k.val) (n := 2 * k.val) (by omega)).trans (oP_pos (F := F) d L v0))) $$ Y0
      icases Y0 with ⟨%f0, Y0⟩
      ihave Y0 := (Entails.of_eq (out_congr d L (off_5 L k v0).symm (out_inb L _) (k16_off5_inb L k k16_h2) f0)) $$ Y0
      ihave Y1 := (Entails.of_eq ((oMix_ge d L fx (t := k.val) (n := 2 * k.val + 1) (by omega)).trans (oP_pos (F := F) d L v1))) $$ Y1
      icases Y1 with ⟨%f1, Y1⟩
      ihave Y1 := (Entails.of_eq (out_congr d L (off_10 L k v1).symm (out_inb L _) (k16_off10_inb L k k16_h5) f1)) $$ Y1
      sl_exec
      sl_for (laneV0 d L g4) $$ [F8_dst R6]
      case region =>
        intro (j : Fin k16_t2_loop.trips) _
        unfold laneV0
        iintro ⟨HA, %g, HB, %hl⟩
        sl_exec
        sl_step
        isplitl [HA]; · iexact HA
        iexists _; isplitl [HB]; · iexact HB
        ipureintro; exact lanes_step d L a4 a6 g4 g j _ _ hl
      · unfold laneV0
        isplitl [F8_dst]; · iexact F8_dst
        iexists _; isplitl [R6]; · iexact R6
        ipureintro; exact lanes_zero d L a4 a6 g4 _
      iintro %_ HI
      unfold laneV0
      icases HI with ⟨H4, %g6', H6, %hl6⟩
      have hl6 : Lanes d L a4 a6 g4 g6' 200 := Eq.mp (congrArg (Lanes d L a4 a6 g4 g6') trips2) hl6
      sl_exec
      sl_for (laneV1 d L g5) $$ [F9_dst R7]
      case region =>
        intro (j : Fin k16_t3_loop.trips) _
        unfold laneV1
        iintro ⟨HA, %g, HB, %hl⟩
        sl_exec
        sl_step
        isplitl [HA]; · iexact HA
        iexists _; isplitl [HB]; · iexact HB
        ipureintro; exact lanes_step' d L a5 a7 g5 g j _ _ hl
      · unfold laneV1
        isplitl [F9_dst]; · iexact F9_dst
        iexists _; isplitl [R7]; · iexact R7
        ipureintro; exact lanes_zero d L a5 a7 g5 _
      iintro %_ HI
      unfold laneV1
      icases HI with ⟨H5, %g7', H7, %hl7⟩
      have hl7 : Lanes d L a5 a7 g5 g7' 200 := Eq.mp (congrArg (Lanes d L a5 a7 g5 g7') trips3) hl7
      sl_exec
      sl_step
      isplitr; · iexact Hmw
      isplitl [HO]
      · iexists _; isplitr
        rotate_left
        · iexact HO
        ipureintro; intro p hp
        rcases Finset.mem_insert.mp hp with rfl | hp
        · exact .inr rfl
        rcases Finset.mem_insert.mp hp with rfl | hp
        · exact .inr rfl
        exact hW' p hp
      isplitl [HX F8_src F9_src]
      · iapply (Entails.of_eq (xSet_in (xP d L fx) k.val hk).symm)
        isplitl [F8_src]; · iapply (Entails.of_eq (xP_pos d L fx v0).symm); iexact F8_src
        isplitl [F9_src]; · iapply (Entails.of_eq (xP_pos d L fx v1).symm); iexact F9_src
        iexact HX
      isplitl [HOut]
      · iapply (Entails.of_eq (congrArg (fun s => bigSep s (oMix d L fx (k.val + 1))) (show oCore k.val = oSet (k.val + 1) by rw [hk0]; decide)))
        iapply (Entails.of_eq (oMix_core d L fx k.val)); iexact HOut
      isplitl [F8]
      · iapply (Entails.of_eq (congrArg (inSlotV d L fx a4 cc16_scratch4.sem) (show 2 * k.val + 2 = 2 * (k.val + 1) by ring)))
        iapply (fl_inV d L fx (off_6 L k v2) (k16_off6_inb L k k16_h3) v2 a4 cc16_scratch4.sem); iexists _, _
        isplitr
        rotate_left
        · iexact F8
        ipureintro; intro y; rfl
      isplitl [F10 H6]
      · iapply (Entails.of_eq (congrArg (outSlotV d L fx a6 cc16_scratch6.sem) (show 2 * k.val + 2 = 2 * (k.val + 1) by ring)))
        iapply (fl_outV d L fx (off_5 L k v0) (k16_off5_inb L k k16_h2) v0 a4 a6 cc16_scratch6.sem f0 g4 g6' hl6 hin4); iexists _
        isplitr
        rotate_left
        · isplitl [F10]; · iexact F10
          iexact H6
        ipureintro; intro y; rfl
      isplitl [F9]
      · iapply (Entails.of_eq (congrArg (inSlotV d L fx a5 cc16_scratch5.sem) (show 2 * k.val + 3 = 2 * (k.val + 1) + 1 by ring)))
        iapply (fl_inV d L fx (off_11 L k v3') (k16_off11_inb L k k16_h6) v3' a5 cc16_scratch5.sem); iexists _, _
        isplitr
        rotate_left
        · iexact F9
        ipureintro; intro y; rfl
      · iapply (Entails.of_eq (congrArg (outSlotV d L fx a7 cc16_scratch7.sem) (show 2 * k.val + 1 + 2 = 2 * (k.val + 1) + 1 by ring)))
        iapply (fl_outV d L fx (off_10 L k v1) (k16_off10_inb L k k16_h5) v1 a5 a7 cc16_scratch7.sem f1 g5 g7' hl7 hin5); iexists _
        isplitr
        rotate_left
        · isplitl [F11]; · iexact F11
          iexact H7
        ipureintro; intro y; rfl
  · unfold invV
    isplitr; · iexact Hmw
    isplitl [HO]
    · iexists W; isplitr
      · ipureintro; exact fun p hp => .inl hp
      · iexact HO
    isplitl [HX]; · iexact HX
    isplitl [HOut]; · iapply (Entails.of_eq (oMix_zero d L fx).symm); iexact HOut
    isplitl [S8]; · iexact S8
    isplitl [H6 Hs10]
    · rw [outSlotV_neg d L fx (by omega)]; isplitl [H6]; · iexists _; iexact H6
      iexact Hs10
    isplitl [S9]; · iexact S9
    rw [outSlotV_neg d L fx (by omega)]; isplitl [H7]; · iexists _; iexact H7
    iexact Hs11
  iintro %acc' HI
  ihave HI := (Entails.of_eq (congrArg (fun t => invV d L O W fx t acc') trips1)) $$ HI
  unfold invV
  icases HI with ⟨-, ⟨%W', %hW', HO⟩, HX, HOut, S8, S10, S9, S11⟩
  have nv16 : ¬ valid L (2 * 8) := by unfold valid; omega
  have nv17 : ¬ valid L (2 * 8 + 1) := by unfold valid; omega
  have hm14 : 2 ≤ 2 * 8 ∧ valid L (2 * 8 - 2) := ⟨by omega, Or.inl (by omega)⟩
  ihave S8 := (Entails.of_eq (inSlotV_neg d L fx nv16)) $$ S8
  icases S8 with ⟨⟨%g4', H4⟩, Hs8⟩
  ihave S9 := (Entails.of_eq (inSlotV_neg d L fx nv17)) $$ S9
  icases S9 with ⟨⟨%g5', H5⟩, Hs9⟩
  ihave S10 := (Entails.of_eq (outSlotV_pos d L fx hm14)) $$ S10
  icases S10 with ⟨%g6', F10, R6⟩
  by_cases hb : big L
  · have k16_h8 : k16_cond8 L = 1#1 := (cond8_iff L).mpr hb
    have hm15 : 2 ≤ 2 * 8 + 1 ∧ valid L (2 * 8 + 1 - 2) := ⟨by omega, Or.inr ⟨by omega, hb⟩⟩
    ihave S11 := (Entails.of_eq (outSlotV_pos d L fx hm15)) $$ S11
    icases S11 with ⟨%g7', F11, R7⟩
    sl_exec
    sl_step
    isplitl [HX]; · iapply (xRange_end d L fx); iexact HX
    isplitl [HOut F10_dst F11_dst]
    · iapply (Entails.of_eq (oRange_end (oQ d L fx)).symm)
      isplitl [F10_dst]; · iapply (Entails.of_eq (oQ_pos d L fx hm14.2).symm); iexact F10_dst
      isplitl [F11_dst]; · iapply (Entails.of_eq (oQ_pos d L fx hm15.2).symm); iexact F11_dst
      iapply (Entails.of_eq (oMix_end d L fx)); iexact HOut
    isplitl [H4]; · iexists _; iexact H4
    isplitl [H5]; · iexists _; iexact H5
    isplitl [R6]; · iexists _; iexact R6
    isplitl [R7]; · iexists _; iexact R7
    isplitl [Hs8]; · iexact Hs8
    isplitl [Hs9]; · iexact Hs9
    isplitl [F10]; · iexact F10
    isplitl [F11]; · iexact F11
    isplitl [HO]
    · iexists _; isplitr
      rotate_left
      · iexact HO
      ipureintro; intro p hp
      rcases Finset.mem_insert.mp hp with rfl | hp
      · exact .inr rfl
      rcases Finset.mem_insert.mp hp with rfl | hp
      · exact .inr rfl
      exact hW' p hp
    iexact HR
  · have k16_h8 : ¬ k16_cond8 L = 1#1 := fun h => hb ((cond8_iff L).mp h)
    have hm15 : ¬ (2 ≤ 2 * 8 + 1 ∧ valid L (2 * 8 + 1 - 2)) := by intro h; have := h.2; unfold valid at this; omega
    ihave S11 := (Entails.of_eq (outSlotV_neg d L fx hm15)) $$ S11
    icases S11 with ⟨⟨%g7', R7⟩, F11⟩
    sl_exec
    sl_step
    isplitl [HX]; · iapply (xRange_end d L fx); iexact HX
    isplitl [HOut F10_dst]
    · iapply (Entails.of_eq (oRange_end (oQ d L fx)).symm)
      isplitl [F10_dst]; · iapply (Entails.of_eq (oQ_pos d L fx hm14.2).symm); iexact F10_dst
      isplitr; · iapply (Entails.of_eq (oQ_neg d L fx (n := 15) (by unfold valid; omega)).symm); iempintro
      iapply (Entails.of_eq (oMix_end d L fx)); iexact HOut
    isplitl [H4]; · iexists _; iexact H4
    isplitl [H5]; · iexists _; iexact H5
    isplitl [R6]; · iexists _; iexact R6
    isplitl [R7]; · iexists _; iexact R7
    isplitl [Hs8]; · iexact Hs8
    isplitl [Hs9]; · iexact Hs9
    isplitl [F10]; · iexact F10
    isplitl [F11]; · iexact F11
    isplitl [HO]
    · iexists _; isplitr
      rotate_left
      · iexact HO
      ipureintro; intro p hp
      rcases Finset.mem_insert.mp hp with rfl | hp
      · exact .inr rfl
      exact hW' p hp
    iexact HR

/-! The subcore's scoped storage: the four staging buffers and the four semaphores of this call, and the rest. -/

abbrev c8 : GSem nD τ sig := (thr d L, SemLoc.dma cc16_scratch4.sem)
abbrev c9 : GSem nD τ sig := (thr d L, SemLoc.dma cc16_scratch5.sem)
abbrev c10 : GSem nD τ sig := (thr d L, SemLoc.dma cc16_scratch6.sem)
abbrev c11 : GSem nD τ sig := (thr d L, SemLoc.dma cc16_scratch7.sem)

omit [FloatOps F] in
theorem ownSems0_V :
    (ownSems0 (thr d L) : sProp 𝕄)
      = iprop(semVal (c8 d L) 0 ∗ semVal (c9 d L) 0 ∗ semVal (c10 d L) 0 ∗ semVal (c11 d L) 0
          ∗ bigSep (((((ownCells (thr d L)).erase (c8 d L)).erase (c9 d L)).erase (c10 d L)).erase (c11 d L)) fun g => semVal g 0) := by
  unfold SparseCore.Cfg.ownSems0
  rw [SparseCore.bigSep_erase' ((mem_ownCells (g := c8 d L)).mpr ⟨rfl, by
      show (SemLoc.dma cc16_scratch4.sem : SemLoc sig).isScoped .scVector = true; decide⟩),
    SparseCore.bigSep_erase' (Finset.mem_erase.mpr ⟨fun e => absurd (Prod.mk.inj e).2 (by decide), (mem_ownCells (g := c9 d L)).mpr ⟨rfl, by
      show (SemLoc.dma cc16_scratch5.sem : SemLoc sig).isScoped .scVector = true; decide⟩⟩),
    SparseCore.bigSep_erase' (Finset.mem_erase.mpr ⟨fun e => absurd (Prod.mk.inj e).2 (by decide), Finset.mem_erase.mpr ⟨fun e => absurd (Prod.mk.inj e).2 (by decide),
      (mem_ownCells (g := c10 d L)).mpr ⟨rfl, by show (SemLoc.dma cc16_scratch6.sem : SemLoc sig).isScoped .scVector = true; decide⟩⟩⟩),
    SparseCore.bigSep_erase' (Finset.mem_erase.mpr ⟨fun e => absurd (Prod.mk.inj e).2 (by decide), Finset.mem_erase.mpr ⟨fun e => absurd (Prod.mk.inj e).2 (by decide),
      Finset.mem_erase.mpr ⟨fun e => absurd (Prod.mk.inj e).2 (by decide),
      (mem_ownCells (g := c11 d L)).mpr ⟨rfl, by show (SemLoc.dma cc16_scratch7.sem : SemLoc sig).isScoped .scVector = true; decide⟩⟩⟩⟩)]

abbrev pV (L : grid16.Coords) : Proc τ := Proc.scVector (cV L) (jV L)

omit [FloatOps F] in
theorem ownBufs_V :
    (ownBufs (thr d L) : sProp 𝕄)
      = iprop((∃ f, (thr d L).loc cc16_scratch0 ↦{fullShare} f) ∗ (∃ f, (thr d L).loc cc16_scratch1 ↦{fullShare} f)
          ∗ (∃ f, (thr d L).loc cc16_scratch2 ↦{fullShare} f) ∗ (∃ f, (thr d L).loc cc16_scratch3 ↦{fullShare} f)
          ∗ bigSep (((((ownRefs (τ := τ) (pV L)).erase ((pV L).devRef cc16_scratch0)).erase ((pV L).devRef cc16_scratch1)).erase
              ((pV L).devRef cc16_scratch2)).erase ((pV L).devRef cc16_scratch3))
              fun b => iprop(∃ f, ((d, b) : Loc nD τ sig) ↦{fullShare} f)) := by
  unfold SparseCore.Cfg.ownBufs
  refine (SparseCore.bigSep_erase' (SparseCore.Cfg.mem_ownRefs_of_owner (p := pV L) (b := (pV L).devRef cc16_scratch0) rfl)).trans ?_
  rw [SparseCore.bigSep_erase' (Finset.mem_erase.mpr ⟨fun e => absurd (Proc.devRef_injective _ e) (show (cc16_scratch1 : Ref sig .scVector) ≠ cc16_scratch0 by decide),
      SparseCore.Cfg.mem_ownRefs_of_owner (p := pV L) (b := (pV L).devRef cc16_scratch1) rfl⟩),
    SparseCore.bigSep_erase' (Finset.mem_erase.mpr ⟨fun e => absurd (Proc.devRef_injective _ e) (show (cc16_scratch2 : Ref sig .scVector) ≠ cc16_scratch1 by decide),
      Finset.mem_erase.mpr ⟨fun e => absurd (Proc.devRef_injective _ e) (show (cc16_scratch2 : Ref sig .scVector) ≠ cc16_scratch0 by decide),
      SparseCore.Cfg.mem_ownRefs_of_owner (p := pV L) (b := (pV L).devRef cc16_scratch2) rfl⟩⟩),
    SparseCore.bigSep_erase' (Finset.mem_erase.mpr ⟨fun e => absurd (Proc.devRef_injective _ e) (show (cc16_scratch3 : Ref sig .scVector) ≠ cc16_scratch2 by decide),
      Finset.mem_erase.mpr ⟨fun e => absurd (Proc.devRef_injective _ e) (show (cc16_scratch3 : Ref sig .scVector) ≠ cc16_scratch1 by decide),
      Finset.mem_erase.mpr ⟨fun e => absurd (Proc.devRef_injective _ e) (show (cc16_scratch3 : Ref sig .scVector) ≠ cc16_scratch0 by decide),
      SparseCore.Cfg.mem_ownRefs_of_owner (p := pV L) (b := (pV L).devRef cc16_scratch3) rfl⟩⟩⟩)]

/-- The rest of the subcore's scoped storage, which the task does not touch. -/
def restR : sProp 𝕄 :=
  iprop((bigSep (((((ownRefs (τ := τ) (pV L)).erase ((pV L).devRef cc16_scratch0)).erase ((pV L).devRef cc16_scratch1)).erase
              ((pV L).devRef cc16_scratch2)).erase ((pV L).devRef cc16_scratch3))
              fun b => iprop(∃ f, ((d, b) : Loc nD τ sig) ↦{fullShare} f))
      ∗ bigSep (((((ownCells (thr d L)).erase (c8 d L)).erase (c9 d L)).erase (c10 d L)).erase (c11 d L)) fun g => semVal g 0)

theorem body_pre (hO : ∀ g, O g none = 0) :
    iprop(levAts (K (F := F)).L (K (F := F)).lev ∗ emp ∗ goRes d L fx ∗ ownBufs (thr d L) ∗ ownSems0 (thr d L) ∗ owes (thr d L) O W)
      ⊢ runPre d L O W fx (restR (F := F) d L) := by
  rw [ownSems0_V, ownBufs_V]
  unfold goRes runPre restR
  iintro ⟨#Hlv, -, ⟨HX, HOut⟩, ⟨H4, H5, H6, H7, Hbufs⟩, ⟨Hs8, Hs9, Hs10, Hs11, Hsems⟩, HO⟩
  ihave Hmw := ((K (F := F)).mayWaits_none (thr := thr d L) hO) $$ Hlv
  isplitr; · iexact Hmw
  isplitl [HO]; · iexact HO
  isplitl [HX]; · iexact HX
  isplitl [HOut]; · iexact HOut
  isplitl [H4]; · iexact H4
  isplitl [H5]; · iexact H5
  isplitl [H6]; · iexact H6
  isplitl [H7]; · iexact H7
  isplitl [Hs8]; · iexact Hs8
  isplitl [Hs9]; · iexact Hs9
  isplitl [Hs10]; · iexact Hs10
  isplitl [Hs11]; · iexact Hs11
  isplitl [Hbufs]; · iexact Hbufs
  iexact Hsems

theorem body_post :
    runPost d L O W fx (restR (F := F) d L)
      ⊢ iprop(tdRes d L fx ∗ ownBufs (thr d L) ∗ ownSems0 (thr d L) ∗ ∃ W', ⌜∀ p ∈ W', p ∈ W ∨ p.2 = none⌝ ∗ owes (thr d L) O W') := by
  rw [ownSems0_V, ownBufs_V]
  unfold tdRes runPost restR
  iintro ⟨HX, HOut, H4, H5, H6, H7, Hs8, Hs9, Hs10, Hs11, HW, Hbufs, Hsems⟩
  isplitl [HX HOut]
  · isplitl [HX]; · iexact HX
    iexact HOut
  isplitl [H4 H5 H6 H7 Hbufs]
  · isplitl [H4]; · iexact H4
    isplitl [H5]; · iexact H5
    isplitl [H6]; · iexact H6
    isplitl [H7]; · iexact H7
    iexact Hbufs
  isplitl [Hs8 Hs9 Hs10 Hs11 Hsems]
  · isplitl [Hs8]; · iexact Hs8
    isplitl [Hs9]; · iexact Hs9
    isplitl [Hs10]; · iexact Hs10
    isplitl [Hs11]; · iexact Hs11
    iexact Hsems
  iexact HW

/-- The task in the launch theorem's shape: from what the call hands the tile and the subcore's scoped storage to
    what the tile hands back and the storage again. -/
theorem tile_body (hF : (K (F := F)).Facts) (hO : ∀ g, O g none = 0) :
    iprop(levAts (K (F := F)).L (K (F := F)).lev ∗ emp ∗ goRes d L fx ∗ scopedBufs (thr d L) ∗ scopedSems0 (thr d L) ∗ owes (thr d L) O W)
      ⊢ wp frame (wpE (defs₀ (F := F)) 𝒱₀ (thr d L) none) Set.univ
          (cc16_sc_group L xtW (Memref.isWhole_whole _) oW (Memref.isWhole_whole _) a4 (Memref.isWhole_whole _) a5 (Memref.isWhole_whole _)
            a6 (Memref.isWhole_whole _) a7 (Memref.isWhole_whole _) cc16_scratch4 cc16_scratch5 cc16_scratch6 cc16_scratch7)
          fun _ => iprop(tdRes d L fx ∗ scopedBufs (thr d L) ∗ scopedSems0 (thr d L)
            ∗ ∃ W', ⌜∀ p ∈ W', p ∈ W ∨ p.2 = none⌝ ∗ owes (thr d L) O W') := by
  rw [(K (F := F)).scopedBufs_V hF d (cV L) (jV L), SparseCore.Cfg.scopedSems0_V (Val := Elt F) d (cV L) (jV L)]
  exact (body_pre d L O W fx hO).trans ((tile_run d L O W fx (restR (F := F) d L)).trans (wp_mono frame _ _ fun _ => body_post d L O W fx))

end Tile

end Cert.Proof.TileB16

end
-- ==== Proof.TileVal17.lean ====
/-
  What the staging buffers of one vector subcore hold while it copies a piece of 3200 consecutive elements of row 17 of
  the transposed argument into the flat result, read index by index. No program and no ownership here: only the contents.

  A transfer lands the piece in row 0 of an 8 × 3200 staging array (`InRow`: position (0, t) of that row holds element
  (0, pos + t) of the transposed argument, `pos` the piece's first column). A loop of 200 trips copies that row, 16 lanes
  per trip, into the first 3200 elements of a flat staging array of 25600: trip `j` reads the 1 × 16 window at columns
  [16 j, 16 j + 16) of row 0 and writes it, flattened, at elements [16 j, 16 j + 16). After `j` trips the first 16 j
  elements of the flat array are the first 16 j elements of the row (`Lanes`); a trip extends the prefix by 16
  (`lanes_step`: an element below 16 j is outside the window written and keeps its value, an element of the window reads
  the lane written there, which is the row's element at the same column). A second transfer writes the first 3200
  elements of the flat array to the piece of the result at the same `pos`; so every element of that piece of the result
  holds the element of row 17 of the transposed argument at its own position (`out_written`): the composite of the three
  index maps t ↦ (0, pos + t) ↦ (0, t) ↦ t ↦ pos + t is the identity on positions of the row.
-/
import proofs.«206869_g37898791420194_cont_8to1_b_558_20_alg».proof.Proof.TileK17Defs
import proofs.«206869_g37898791420194_cont_8to1_b_558_20_alg».proof.Proof.Spec
import Idealize.ShloMosaic.Lib.WritesUnit
import Idealize.ShloMosaic.Lib.ValueLayout

noncomputable section

namespace Cert.Proof.TileVal17

open Cert.Proof.TileK17 Cert.KernelIdeal Cert.KernelIdeal.Gen
open Idealize.ShloMosaic Idealize.ShloMosaic.ValueIdx

variable {F : FTy → Type} [FloatOps F]
variable (d : Dev nD) (L : grid17.Coords)
variable (fx : Buf (Elt F) ((Memref.whole main_v0_scv : Memref sig .scVector .hbm S22x1600000 .f32).view.loc (thr d L)))

abbrev rowRect : Rect S8x3200 := Rect.unit (s := S8x3200) ![0, 0] S1x3200.size inb_S8x3200_S1x3200_0_0

/-- row 0 of the staging array is piece n of the argument row -/
def InRow (a : Memref sig .scVector .vmem S8x3200 .f32) (ga : Buf (Elt F) (a.view.loc (thr d L))) (n : ℕ) : Prop :=
  ∀ y : S1x3200.Idx, a.view.read (Elt F) ga (rowRect.emb y) = (inM L n).view.read (Elt F) fx y

theorem inRow_fetch (a : Memref sig .scVector .vmem S8x3200 .f32) (gold : Buf (Elt F) (a.view.loc (thr d L)))
    (w : S1x3200.Idx → Elt F .f32) (n : ℕ) (hw : ∀ y, w y = (inM L n).view.read (Elt F) fx y) :
    InRow d L fx a (a.view.writes (Elt F) gold [⟨rowRect, w⟩]) n :=
  fun y => (View.read_writes_cons_emb a.view gold rowRect w [] y).trans (hw y)

def Lanes (a : Memref sig .scVector .vmem S8x3200 .f32) (b : Memref sig .scVector .vmem S25600 .f32)
    (ga : Buf (Elt F) (a.view.loc (thr d L))) (gb : Buf (Elt F) (b.view.loc (thr d L))) (j : ℕ) : Prop :=
  ∀ (r : ℕ) (hr : r < 3200), r < 16 * j →
    b.view.read (Elt F) gb (ix1 (⟨r, by omega⟩ : Fin 25600)) = a.view.read (Elt F) ga (ix2 (0 : Fin 8) (⟨r, hr⟩ : Fin 3200))

theorem lanes_zero (a : Memref sig .scVector .vmem S8x3200 .f32) (b : Memref sig .scVector .vmem S25600 .f32)
    (ga : Buf (Elt F) (a.view.loc (thr d L))) (gb : Buf (Elt F) (b.view.loc (thr d L))) : Lanes d L a b ga gb 0 := by
  intro r hr h; omega

/-- The 1 × 16 window at column `c` of the staging array, read at lane `t`, is element `(0, c + t)`. -/
theorem idx_window {off : Fin 2 → ℕ} {c : ℕ} (h : off = ![0, c]) (p : ∀ a', off a' + S1x16.size a' ≤ S8x3200.size a')
    (t : Fin 16) (hr : c + t.val < 3200) :
    (Rect.unit (s := S8x3200) off S1x16.size p).toLoadRect.idx (ix2 (0 : Fin 1) t) = ix2 (0 : Fin 8) (⟨c + t.val, hr⟩ : Fin 3200) := by
  subst h
  funext a'; apply Fin.ext
  rw [LoadRect.idx_apply]
  match a' with
  | ⟨0, _⟩ => show 0 + 1 * 0 = 0; omega
  | ⟨1, _⟩ => show c + 1 * t.val = c + t.val; omega

/-- One trip of a lane-copy loop, the offsets given by their closed forms. -/
theorem lanes_step_core (a : Memref sig .scVector .vmem S8x3200 .f32) (b : Memref sig .scVector .vmem S25600 .f32)
    (ga : Buf (Elt F) (a.view.loc (thr d L))) (gb : Buf (Elt F) (b.view.loc (thr d L)))
    (t : ℕ) {off3 : Fin 2 → ℕ} {off4 : Fin 1 → ℕ} (h3 : off3 = ![0, 16 * t]) (h4 : off4 = ![16 * t])
    (p3 : ∀ a', off3 a' + S1x16.size a' ≤ S8x3200.size a') (p4 : ∀ a', off4 a' + S16.size a' ≤ S25600.size a')
    (h : Lanes d L a b ga gb t) :
    Lanes d L a b ga (b.view.writes (Elt F) gb [⟨Rect.unit (s := S25600) off4 S16.size p4,
      shapeCast S16 (a.view.readAt (Elt F) (Rect.unit (s := S8x3200) off3 S1x16.size p3).toLoadRect ga) shapeCasts_S1x16_S16⟩]) (t + 1) := by
  intro r hr hlt
  by_cases hlo : r < 16 * t
  · refine (View.read_writes_cons_unit_of_not_mem b.view gb p4 _ [] _ h4 (0 : Fin 1) (Or.inl ?_)).trans (h r hr hlo)
    show r < 16 * t
    exact hlo
  · have hx : r - 16 * t < 16 := by omega
    refine (View.read_writes_cons_unit_of_mem b.view gb p4 _ [] _ (ix1 (⟨r - 16 * t, hx⟩ : Fin 16)) h4 ?_).trans ?_
    · intro a'
      match a' with
      | ⟨0, _⟩ => show r = 16 * t + (r - 16 * t); omega
    · rw [shapeCast_1a_a_apply, View.readAt_apply, idx_window h3 p3 ⟨r - 16 * t, hx⟩ (by show 16 * t + (r - 16 * t) < 3200; omega)]
      congr 2
      apply Fin.ext
      show 16 * t + (r - 16 * t) = r
      omega

theorem lanes_step (a : Memref sig .scVector .vmem S8x3200 .f32) (b : Memref sig .scVector .vmem S25600 .f32)
    (ga : Buf (Elt F) (a.view.loc (thr d L))) (gb : Buf (Elt F) (b.view.loc (thr d L)))
    (j : Fin k17_t2_loop.trips) (p3 : ∀ a', (k17_off3 j) a' + S1x16.size a' ≤ S8x3200.size a')
    (p4 : ∀ a', (k17_off4 j) a' + S16.size a' ≤ S25600.size a') (h : Lanes d L a b ga gb j.val) :
    Lanes d L a b ga (b.view.writes (Elt F) gb [⟨Rect.unit (s := S25600) (k17_off4 j) S16.size p4,
      k17_pay1 (a.view.readAt (Elt F) (Rect.unit (s := S8x3200) (k17_off3 j) S1x16.size p3).toLoadRect ga)⟩]) (j.val + 1) :=
  lanes_step_core d L a b ga gb j.val (k17_off3_eq j) (k17_off4_eq j) p3 p4 h

theorem lanes_step' (a : Memref sig .scVector .vmem S8x3200 .f32) (b : Memref sig .scVector .vmem S25600 .f32)
    (ga : Buf (Elt F) (a.view.loc (thr d L))) (gb : Buf (Elt F) (b.view.loc (thr d L)))
    (j : Fin k17_t3_loop.trips) (p3 : ∀ a', (k17_off8 j) a' + S1x16.size a' ≤ S8x3200.size a')
    (p4 : ∀ a', (k17_off9 j) a' + S16.size a' ≤ S25600.size a') (h : Lanes d L a b ga gb j.val) :
    Lanes d L a b ga (b.view.writes (Elt F) gb [⟨Rect.unit (s := S25600) (k17_off9 j) S16.size p4,
      k17_pay2 (a.view.readAt (Elt F) (Rect.unit (s := S8x3200) (k17_off8 j) S1x16.size p3).toLoadRect ga)⟩]) (j.val + 1) :=
  lanes_step_core d L a b ga gb j.val (k17_off8_eq j) (k17_off9_eq j) p3 p4 h

/-- Position `y` of the write-out window of the flat staging array is its element `y 0`. -/
theorem stg_emb (y : S3200.Idx) (hy : (y 0).val < 25600) :
    (Rect.unit (s := S25600) ![0] S3200.size inb_S25600_S3200_0).emb y = ix1 (⟨(y 0).val, hy⟩ : Fin 25600) := by
  funext a'; apply Fin.ext
  match a' with
  | ⟨0, _⟩ => show 0 + 1 * (y 0).val = (y 0).val; omega

/-- Position `(0, t)` of row 0 of the staging array is its element `(0, t)`. -/
theorem row_emb (t : Fin 3200) : rowRect.emb (ix2 (0 : Fin 1) t) = ix2 (0 : Fin 8) t := by
  funext a'; apply Fin.ext
  match a' with
  | ⟨0, _⟩ => show 0 + 1 * 0 = 0; omega
  | ⟨1, _⟩ => show 0 + 1 * t.val = t.val; omega

/-- Position `(0, t)` of piece `n` of the argument row is element `(0, pos + t)` of the transposed argument;
    position `y` of piece `n` of the result is element `pos + y 0` of the result. -/
theorem in_emb (n : ℕ) (t : Fin 3200) (h : pos L n + t.val < 1600000) :
    (inM L n).view.emb (ix2 (0 : Fin 1) t) = ix2 (17 : Fin 22) (⟨pos L n + t.val, h⟩ : Fin 1600000) := by
  funext a'; apply Fin.ext
  match a' with
  | ⟨0, _⟩ => show 17 + 1 * 0 = 17; omega
  | ⟨1, _⟩ => show pos L n + 1 * t.val = pos L n + t.val; omega

theorem out_emb (n : ℕ) (y : S3200.Idx) (h : pos L n + (y 0).val < 1600000) :
    (outM L n).view.emb y = ix1 (⟨pos L n + (y 0).val, h⟩ : Fin 1600000) := by
  funext a'; apply Fin.ext
  match a' with
  | ⟨0, _⟩ => show pos L n + 1 * (y 0).val = pos L n + (y 0).val; omega

/-- Both lane-copy loops run 200 trips: 200 · 16 = 3200, the whole row. -/
theorem trips2 : k17_t2_loop.trips = 200 := by decide
theorem trips3 : k17_t3_loop.trips = 200 := by decide

/-- After all its trips a lane-copy loop has copied the whole row. -/
theorem lanes_all (a : Memref sig .scVector .vmem S8x3200 .f32) (b : Memref sig .scVector .vmem S25600 .f32)
    (ga : Buf (Elt F) (a.view.loc (thr d L))) (gb : Buf (Elt F) (b.view.loc (thr d L)))
    (h : Lanes d L a b ga gb k17_t2_loop.trips) : Lanes d L a b ga gb 200 := trips2 ▸ h
theorem lanes_all' (a : Memref sig .scVector .vmem S8x3200 .f32) (b : Memref sig .scVector .vmem S25600 .f32)
    (ga : Buf (Elt F) (a.view.loc (thr d L))) (gb : Buf (Elt F) (b.view.loc (thr d L)))
    (h : Lanes d L a b ga gb k17_t3_loop.trips) : Lanes d L a b ga gb 200 := trips3 ▸ h

/-- The write-out of a piece: the first 3200 elements of the flat staging array, which the 200 lane copies filled from
    row 0 of the staging array, which the fetch filled from piece `n` of row 17 of the transposed argument, land at
    piece `n` of the result, at the same positions of the row. -/
theorem out_written (a : Memref sig .scVector .vmem S8x3200 .f32) (b : Memref sig .scVector .vmem S25600 .f32) (n : ℕ)
    (ga : Buf (Elt F) (a.view.loc (thr d L))) (gb : Buf (Elt F) (b.view.loc (thr d L)))
    (f0 : Buf (Elt F) ((outM L n).view.loc (thr d L))) (w : S3200.Idx → Elt F .f32)
    (hw : ∀ y, w y = (stg b).view.read (Elt F) gb y) (hl : Lanes d L a b ga gb 200) (hr : InRow d L fx a ga n) (hv : valid L n) :
    ∀ i ∈ (outM L n).view.set, ((outM L n).view.writes (Elt F) f0 [⟨Rect.whole _, w⟩]) i = Cert.Spec.row 17 fx i := by
  intro i hi
  obtain ⟨y, -, rfl⟩ := Finset.mem_map.mp hi
  have hy : (y 0).val < 3200 := (y 0).isLt
  have hp : pos L n + (y 0).val < 1600000 := by unfold pos; omega
  have e1 : (outM L n).view.writes (Elt F) f0 [⟨Rect.whole _, w⟩] ((outM L n).view.emb y) = w y := by
    have h := View.read_writes_cons_emb (outM L n).view f0 (Rect.whole _) w [] y
    rw [Rect.emb_whole_apply] at h
    exact (cast_eq _ _).symm.trans ((View.read_apply _ _).symm.trans h)
  have e2 : (stg b).view.read (Elt F) gb y = b.view.read (Elt F) gb (ix1 (⟨(y 0).val, by omega⟩ : Fin 25600)) :=
    congrArg (b.view.read (Elt F) gb) (stg_emb y (by omega))
  have e3 : a.view.read (Elt F) ga (ix2 (0 : Fin 8) (⟨(y 0).val, hy⟩ : Fin 3200))
      = (inM L n).view.read (Elt F) fx (ix2 (0 : Fin 1) (⟨(y 0).val, hy⟩ : Fin 3200)) :=
    (congrArg (a.view.read (Elt F) ga) (row_emb ⟨(y 0).val, hy⟩).symm).trans (hr _)
  have e4 : (inM L n).view.read (Elt F) fx (ix2 (0 : Fin 1) (⟨(y 0).val, hy⟩ : Fin 3200))
      = fx (ix2 (17 : Fin 22) (⟨pos L n + (y 0).val, hp⟩ : Fin 1600000)) :=
    ((View.read_apply _ _).trans (cast_eq _ _)).trans (congrArg fx (in_emb L n ⟨(y 0).val, hy⟩ hp))
  have e5 : Cert.Spec.row 17 fx ((outM L n).view.emb y) = fx (ix2 (17 : Fin 22) (⟨pos L n + (y 0).val, hp⟩ : Fin 1600000)) :=
    (congrArg (Cert.Spec.row 17 fx) (out_emb L n y hp)).trans (Cert.Spec.row_apply 17 fx _)
  exact e1.trans ((hw y).trans (e2.trans ((hl _ hy (by omega)).trans (e3.trans (e4.trans e5.symm)))))

end Cert.Proof.TileVal17

end
-- ==== Proof.TileK17.lean ====
/-
  One vector subcore's task of copy kernel 17 (counting from 0), run symbolically: the two fetch slots and two write-out slots
  between trips of the main loop (what each transfer in flight will hand back, and what the staging buffers hold), the
  invariant of the main loop and of the two lane-copy loops, and the task's run — from the tile's pieces of row 17 of
  the transposed argument and of the result to the same pieces with the result holding the row's elements.
-/
import proofs.«206869_g37898791420194_cont_8to1_b_558_20_alg».proof.Proof.TileK17Defs
import proofs.«206869_g37898791420194_cont_8to1_b_558_20_alg».proof.Proof.TileVal17
noncomputable section

namespace Cert.Proof.TileK17

open Cert.KernelIdeal Cert.KernelIdeal.Gen Cert.Proof.TileVal17
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 22) (Elt F) ℕ UU ℕ
local notation "xtW" => (Memref.whole Cert.KernelIdeal.main_v0_scv : Memref Cert.KernelIdeal.sig Kind.scVector Space.hbm Cert.KernelIdeal.S22x1600000 EltTy.f32)
local notation "oW" => (Memref.whole Cert.KernelIdeal.main_v18_scv : Memref Cert.KernelIdeal.sig Kind.scVector Space.hbm Cert.KernelIdeal.S1600000 EltTy.f32)
local notation "a4" => (Memref.whole Cert.KernelIdeal.cc17_scratch0 : Memref Cert.KernelIdeal.sig Kind.scVector Space.vmem Cert.KernelIdeal.S8x3200 EltTy.f32)
local notation "a5" => (Memref.whole Cert.KernelIdeal.cc17_scratch1 : Memref Cert.KernelIdeal.sig Kind.scVector Space.vmem Cert.KernelIdeal.S8x3200 EltTy.f32)
local notation "a6" => (Memref.whole Cert.KernelIdeal.cc17_scratch2 : Memref Cert.KernelIdeal.sig Kind.scVector Space.vmem Cert.KernelIdeal.S25600 EltTy.f32)
local notation "a7" => (Memref.whole Cert.KernelIdeal.cc17_scratch3 : Memref Cert.KernelIdeal.sig Kind.scVector Space.vmem Cert.KernelIdeal.S25600 EltTy.f32)

variable [FloatOps F]

section Tile

variable (d : Dev nD) (L : grid17.Coords)
variable (O : CellTallies nD τ sig (HIx 22)) (W : Waits sig (HIx 22))
variable (fx : Buf (Elt F) ((xtW).view.loc (thr d L)))

/-- Piece `n` of the result at its final contents. -/
abbrev oqPiece (n : ℕ) : sProp 𝕄 := (outM L n).view.loc (thr d L) ↦[(outM L n).view.set]{fullShare} (Cert.Spec.row 17 fx)
theorem oQ_pos {n : ℕ} (v : valid L n) : oQ d L fx n = oqPiece d L fx n := if_pos v
theorem oQ_neg {n : ℕ} (v : ¬ valid L n) : oQ d L fx n = iprop(emp) := if_neg v

/-- A fetch slot, remembering that the staging row it will hand back holds the piece. -/
def inSlotV (a : Memref sig .scVector .vmem S8x3200 .f32) (sm : DmaSem sig) (n : ℕ) : sProp 𝕄 :=
  if valid L n then
    iprop(∃ g, ⌜InRow d L fx a g n⌝ ∗ Transfers.Flight countersEmb (thr d L) (SemLoc.dma sm) (default : HIx 22) NN
      iprop((a.view.loc (thr d L) ↦{fullShare} g) ∗ xtPiece d L fx n))
  else iprop((∃ g, a.view.loc (thr d L) ↦{fullShare} g) ∗ semVal (thr d L, SemLoc.dma sm) 0)

/-- A write-out slot: the piece in flight will come back holding the row's elements. -/
def outSlotV (a : Memref sig .scVector .vmem S25600 .f32) (sm : DmaSem sig) (m : ℕ) : sProp 𝕄 :=
  if 2 ≤ m ∧ valid L (m - 2) then
    iprop(∃ g, Transfers.Flight countersEmb (thr d L) (SemLoc.dma sm) (default : HIx 22) NN
        iprop(oqPiece d L fx (m - 2) ∗ ((stg a).view.loc (thr d L) ↦[(stg a).view.set]{fullShare} g))
      ∗ (a.view.loc (thr d L) ↦[Finset.univ \ (stg a).view.set]{fullShare} g))
  else iprop((∃ g, a.view.loc (thr d L) ↦{fullShare} g) ∗ semVal (thr d L, SemLoc.dma sm) 0)

theorem inSlotV_pos {a : Memref sig .scVector .vmem S8x3200 .f32} {sm : DmaSem sig} {n : ℕ} (v : valid L n) :
    inSlotV d L fx a sm n = iprop(∃ g, ⌜InRow d L fx a g n⌝ ∗ Transfers.Flight countersEmb (thr d L) (SemLoc.dma sm) (default : HIx 22) NN
      iprop((a.view.loc (thr d L) ↦{fullShare} g) ∗ xtPiece d L fx n)) := by unfold inSlotV; rw [if_pos v]
theorem inSlotV_neg {a : Memref sig .scVector .vmem S8x3200 .f32} {sm : DmaSem sig} {n : ℕ} (v : ¬ valid L n) :
    inSlotV d L fx a sm n = iprop((∃ g, a.view.loc (thr d L) ↦{fullShare} g) ∗ semVal (thr d L, SemLoc.dma sm) 0) := by
  unfold inSlotV; rw [if_neg v]
theorem outSlotV_pos {a : Memref sig .scVector .vmem S25600 .f32} {sm : DmaSem sig} {m : ℕ} (h : 2 ≤ m ∧ valid L (m - 2)) :
    outSlotV d L fx a sm m = iprop(∃ g, Transfers.Flight countersEmb (thr d L) (SemLoc.dma sm) (default : HIx 22) NN
        iprop(oqPiece d L fx (m - 2) ∗ ((stg a).view.loc (thr d L) ↦[(stg a).view.set]{fullShare} g))
      ∗ (a.view.loc (thr d L) ↦[Finset.univ \ (stg a).view.set]{fullShare} g)) := by unfold outSlotV; rw [if_pos h]
theorem outSlotV_neg {a : Memref sig .scVector .vmem S25600 .f32} {sm : DmaSem sig} {m : ℕ} (h : ¬ (2 ≤ m ∧ valid L (m - 2))) :
    outSlotV d L fx a sm m = iprop((∃ g, a.view.loc (thr d L) ↦{fullShare} g) ∗ semVal (thr d L, SemLoc.dma sm) 0) := by
  unfold outSlotV; rw [if_neg h]

/-- A fetch just issued: the staging row will hold what the transfer reads, which is the piece. -/
theorem fl_inV {off : Fin 2 → ℕ} {n : ℕ} (h : off = ![17, pos L n]) (p : ∀ a, off a + S1x3200.size a ≤ S22x1600000.size a) (v : valid L n)
    (a : Memref sig .scVector .vmem S8x3200 .f32) (sm : DmaSem sig) :
    (iprop(∃ (gold : Buf (Elt F) (a.view.loc (thr d L))) (w : S1x3200.Idx → Elt F .f32),
        ⌜∀ y, w y = ((xtW).slice (Rect.unit (s := S22x1600000) off S1x3200.size p) (fun _ => rfl)).view.read (Elt F) fx y⌝
        ∗ Transfers.Flight countersEmb (thr d L) (SemLoc.dma sm) (default : HIx 22) NN
          iprop((a.view.loc (thr d L) ↦{fullShare} a.view.writes (Elt F) gold [⟨rowRect, w⟩])
            ∗ (((xtW).slice (Rect.unit (s := S22x1600000) off S1x3200.size p) (fun _ => rfl)).view.loc (thr d L)
                ↦[((xtW).slice (Rect.unit (s := S22x1600000) off S1x3200.size p) (fun _ => rfl)).view.set]{fullShare} fx))) : sProp 𝕄)
      ⊢ inSlotV d L fx a sm n := by
  subst h
  rw [inSlotV_pos d L fx v]
  iintro ⟨%gold, %w, %hw, H⟩
  iexists _
  isplitr
  · ipureintro; exact inRow_fetch d L fx a gold w n hw
  · iexact H

set_option maxHeartbeats 4000000 in
/-- A write-out just issued from a flat staging buffer whose first 3200 elements are the staging row, itself piece
    `n` of the argument row: the piece of the result will hold the row's elements. -/
theorem fl_outV {off : Fin 1 → ℕ} {n : ℕ} (h : off = ![pos L n]) (p : ∀ a, off a + S3200.size a ≤ S1600000.size a) (v : valid L n)
    (ar : Memref sig .scVector .vmem S8x3200 .f32) (a : Memref sig .scVector .vmem S25600 .f32) (sm : DmaSem sig)
    (f0 : Buf (Elt F) ((oW).view.loc (thr d L))) (ga : Buf (Elt F) (ar.view.loc (thr d L))) (gb : Buf (Elt F) (a.view.loc (thr d L)))
    (hl : Lanes d L ar a ga gb 200) (hr : InRow d L fx ar ga n) :
    (iprop(∃ (w : S3200.Idx → Elt F .f32),
        ⌜∀ y, w y = (stg a).view.read (Elt F) gb y⌝
        ∗ Transfers.Flight countersEmb (thr d L) (SemLoc.dma sm) (default : HIx 22) NN
          iprop((((oW).slice (Rect.unit (s := S1600000) off S3200.size p) (fun _ => rfl)).view.loc (thr d L)
                ↦[((oW).slice (Rect.unit (s := S1600000) off S3200.size p) (fun _ => rfl)).view.set]{fullShare}
                  (((oW).slice (Rect.unit (s := S1600000) off S3200.size p) (fun _ => rfl)).view.writes (Elt F) f0 [⟨Rect.whole _, w⟩]))
            ∗ ((stg a).view.loc (thr d L) ↦[(stg a).view.set]{fullShare} gb))
        ∗ (a.view.loc (thr d L) ↦[Finset.univ \ (stg a).view.set]{fullShare} gb)) : sProp 𝕄)
      ⊢ outSlotV d L fx a sm (n + 2) := by
  subst h
  rw [outSlotV_pos d L fx (m := n + 2) ⟨by omega, by simpa using v⟩]
  iintro ⟨%w, %hw, H, R⟩
  have hD : (iprop(((outM L n).view.loc (thr d L) ↦[(outM L n).view.set]{fullShare} ((outM L n).view.writes (Elt F) f0 [⟨Rect.whole _, w⟩]))
          ∗ ((stg a).view.loc (thr d L) ↦[(stg a).view.set]{fullShare} gb)) : sProp 𝕄)
      ⊢ iprop(oqPiece d L fx (n + 2 - 2) ∗ ((stg a).view.loc (thr d L) ↦[(stg a).view.set]{fullShare} gb)) := by
    rw [Nat.add_sub_cancel]
    have e : (((outM L n).view.loc (thr d L) ↦[(outM L n).view.set]{fullShare} ((outM L n).view.writes (Elt F) f0 [⟨Rect.whole _, w⟩])) : sProp 𝕄)
        = oqPiece d L fx n := pointsTo_congr (out_written d L fx ar a n ga gb f0 w hw hl hr v)
    iintro ⟨H1, H2⟩
    isplitl [H1]
    · iapply (Entails.of_eq e); iexact H1
    · iexact H2
  iexists gb
  isplitl [H]
  · iapply (Transfers.Flight_mono countersEmb (thr d L) hD); iexact H
  · iexact R

/-- The result pieces outside the slots before trip `t`: those already written hold the row, the others some contents. -/
def oMix (t n : ℕ) : sProp 𝕄 := if n + 2 < 2 * t then oQ d L fx n else oP (F := F) d L n
theorem oMix_lt {t n : ℕ} (h : n + 2 < 2 * t) : oMix d L fx t n = oQ d L fx n := if_pos h
theorem oMix_ge {t n : ℕ} (h : ¬ n + 2 < 2 * t) : oMix d L fx t n = oP (F := F) d L n := if_neg h
theorem oMix_core (k : ℕ) : bigSep (oCore k) (oMix d L fx k) = bigSep (oCore k) (oMix d L fx (k + 1)) :=
  bigSep_congr fun n hn => by
    have hn' : n + 2 ≠ 2 * k ∧ n + 2 ≠ 2 * k + 1 ∧ n ≠ 2 * k ∧ n ≠ 2 * k + 1 := by
      simp only [oCore, Finset.mem_filter, Finset.mem_range] at hn; exact hn.2
    by_cases h : n + 2 < 2 * k
    · rw [oMix_lt d L fx h, oMix_lt d L fx (by omega)]
    · rw [oMix_ge d L fx h, oMix_ge d L fx (by omega)]
theorem oMix_zero : bigSep (oSet 0) (oMix d L fx 0) = bigSep (Finset.range 18) (oP (F := F) d L) := by
  rw [oSet_zero]; exact bigSep_congr fun n _ => oMix_ge d L fx (by omega)
theorem oMix_end : bigSep (oSet 8) (oMix d L fx 8) = bigSep (oSet 8) (oQ d L fx) :=
  bigSep_congr fun n hn => by
    have hn' : n < 18 ∧ n + 2 ≠ 16 ∧ n + 2 ≠ 17 := by simpa only [oSet, Finset.mem_filter, Finset.mem_range] using hn
    by_cases h : n + 2 < 2 * 8
    · exact oMix_lt d L fx h
    · rw [oMix_ge d L fx h, oP_neg (F := F) d L (by unfold valid; omega), oQ_neg d L fx (by unfold valid; omega)]

/-- The lane-copy loops: before trip `j` the first 16·j elements of the flat staging buffer are the staging row's. -/
def laneV0 (g4 : Buf (Elt F) ((a4).view.loc (thr d L))) (j : ℕ) (_ : PUnit) : sProp 𝕄 :=
  iprop(((a4).view.loc (thr d L) ↦{fullShare} g4) ∗ (∃ g, ((a6).view.loc (thr d L) ↦{fullShare} g) ∗ ⌜Lanes d L a4 a6 g4 g j⌝))
def laneV1 (g5 : Buf (Elt F) ((a5).view.loc (thr d L))) (j : ℕ) (_ : PUnit) : sProp 𝕄 :=
  iprop(((a5).view.loc (thr d L) ↦{fullShare} g5) ∗ (∃ g, ((a7).view.loc (thr d L) ↦{fullShare} g) ∗ ⌜Lanes d L a5 a7 g5 g j⌝))

def invV (t : ℕ) (_ : PUnit) : sProp 𝕄 :=
  iprop(Transfers.MayWaits (thr d L) (none : HIx 22) O
    ∗ (∃ W', ⌜∀ p ∈ W', p ∈ W ∨ p.2 = none⌝ ∗ owes (thr d L) O W')
    ∗ bigSep (xSet t) (xP d L fx) ∗ bigSep (oSet t) (oMix d L fx t)
    ∗ inSlotV d L fx a4 cc17_scratch4.sem (2 * t) ∗ outSlotV d L fx a6 cc17_scratch6.sem (2 * t)
    ∗ inSlotV d L fx a5 cc17_scratch5.sem (2 * t + 1) ∗ outSlotV d L fx a7 cc17_scratch7.sem (2 * t + 1))

/-- After the last trip nothing of the argument row is in a slot: the tile holds all its pieces. -/
theorem xRange_end : bigSep (xSet 8) (xP d L fx) ⊢ bigSep (Finset.range 18) (xP d L fx) := by
  rw [two_out (s := Finset.range 18) (a := 16) (b := 17) (by decide) (by decide) (by decide),
    show ((Finset.range 18).erase 16).erase 17 = xSet 8 by decide]
  iintro H
  isplitr; · iapply (Entails.of_eq (xP_neg d L fx (n := 16) (by unfold valid; omega)).symm); iempintro
  isplitr; · iapply (Entails.of_eq (xP_neg d L fx (n := 17) (by unfold valid; omega)).symm); iempintro
  iexact H
omit [FloatOps F] in
theorem oRange_end (Φ : ℕ → sProp 𝕄) : bigSep (Finset.range 18) Φ = iprop(Φ 14 ∗ Φ 15 ∗ bigSep (oSet 8) Φ) := by
  rw [two_out (s := Finset.range 18) (a := 14) (b := 15) (by decide) (by decide) (by decide),
    show ((Finset.range 18).erase 14).erase 15 = oSet 8 by decide]

/-- What the run starts from and ends with, beside an untouched rest `R`. -/
def runPre (R : sProp 𝕄) : sProp 𝕄 :=
    iprop(Transfers.MayWaits (thr d L) (none : HIx 22) O ∗ owes (thr d L) O W
        ∗ bigSep (Finset.range 18) (xP d L fx) ∗ bigSep (Finset.range 18) (oP (F := F) d L)
        ∗ (∃ g, (a4).view.loc (thr d L) ↦{fullShare} g) ∗ (∃ g, (a5).view.loc (thr d L) ↦{fullShare} g)
        ∗ (∃ g, (a6).view.loc (thr d L) ↦{fullShare} g) ∗ (∃ g, (a7).view.loc (thr d L) ↦{fullShare} g)
        ∗ semVal (thr d L, SemLoc.dma cc17_scratch4.sem) 0 ∗ semVal (thr d L, SemLoc.dma cc17_scratch5.sem) 0
        ∗ semVal (thr d L, SemLoc.dma cc17_scratch6.sem) 0 ∗ semVal (thr d L, SemLoc.dma cc17_scratch7.sem) 0 ∗ R)
def runPost (R : sProp 𝕄) : sProp 𝕄 :=
    iprop(bigSep (Finset.range 18) (xP d L fx) ∗ bigSep (Finset.range 18) (oQ d L fx)
            ∗ (∃ g, (a4).view.loc (thr d L) ↦{fullShare} g) ∗ (∃ g, (a5).view.loc (thr d L) ↦{fullShare} g)
            ∗ (∃ g, (a6).view.loc (thr d L) ↦{fullShare} g) ∗ (∃ g, (a7).view.loc (thr d L) ↦{fullShare} g)
            ∗ semVal (thr d L, SemLoc.dma cc17_scratch4.sem) 0 ∗ semVal (thr d L, SemLoc.dma cc17_scratch5.sem) 0
            ∗ semVal (thr d L, SemLoc.dma cc17_scratch6.sem) 0 ∗ semVal (thr d L, SemLoc.dma cc17_scratch7.sem) 0
            ∗ (∃ W', ⌜∀ p ∈ W', p ∈ W ∨ p.2 = none⌝ ∗ owes (thr d L) O W') ∗ R)

set_option maxHeartbeats 16000000 in
/-- The task's run: from its pieces of the argument row and of the result, the four staging buffers and the four
    semaphores at zero, to the same with every piece of the result holding the row's elements. -/
theorem tile_run (R : sProp 𝕄) :
    runPre d L O W fx R
      ⊢ wp frame (wpE (defs₀ (F := F)) 𝒱₀ (thr d L) none) Set.univ
          (cc17_sc_group L xtW (Memref.isWhole_whole _) oW (Memref.isWhole_whole _) a4 (Memref.isWhole_whole _) a5 (Memref.isWhole_whole _)
            a6 (Memref.isWhole_whole _) a7 (Memref.isWhole_whole _) cc17_scratch4 cc17_scratch5 cc17_scratch6 cc17_scratch7)
          fun _ => runPost d L O W fx R := by
  unfold runPre runPost
  have v0 : valid L 0 := Or.inl (by omega)
  have v1 : valid L 1 := Or.inl (by omega)
  have k17_h7 : k17_cond7 L = 1#1 := cond7_iff L
  iintro ⟨#Hmw, HO, HX, HOut, ⟨%g4, H4⟩, ⟨%g5, H5⟩, ⟨%g6, H6⟩, ⟨%g7, H7⟩, Hs8, Hs9, Hs10, Hs11, HR⟩
  ihave HX := (Entails.of_eq (xRange_split d L fx v0 v1)) $$ HX
  icases HX with ⟨X0, X1, HX⟩
  ihave X0 := (Entails.of_eq (in_congr d L (off_in0 L v0).symm (in_inb L _) (k17_off1_inb L 0) fx)) $$ X0
  ihave X1 := (Entails.of_eq (in_congr d L (off_in1 L v1).symm (in_inb L _) (k17_off1_inb L 1) fx)) $$ X1
  sl_unfold [cc17_sc_group]
  sl_exec
  ihave S8 := (fl_inV d L fx (off_in0 L v0) (k17_off1_inb L 0) v0 a4 cc17_scratch4.sem) $$ [Hs8]
  · iexists _, _
    isplitr
    rotate_left
    · iexact Hs8
    ipureintro; intro y; rfl
  ihave S9 := (fl_inV d L fx (off_in1 L v1) (k17_off1_inb L 1) v1 a5 cc17_scratch5.sem) $$ [Hs9]
  · iexists _, _
    isplitr
    rotate_left
    · iexact Hs9
    ipureintro; intro y; rfl
  sl_for (invV d L O W fx) $$ [HO HX HOut S8 S9 H6 H7 Hs10 Hs11]
  case region =>
    intro (k : Fin k17_t1_loop.trips) acc
    have hk : k.val < 8 := Nat.lt_of_lt_of_eq k.isLt trips1
    unfold invV
    iintro ⟨#Hmw, ⟨%W', %hW', HO⟩, HX, HOut, S8, S10, S9, S11⟩
    by_cases hk1 : 1 ≤ k.val
    · by_cases v3 : valid L (2 * k.val + 3)
      · -- the generic trip: both drains, both pieces worked, both next fetches issued
        have hk6 : k.val ≤ 6 := by unfold valid at v3; omega
        have k17_h1 : k17_cond1 k = 1#1 := (cond1_iff k).mpr (by omega)
        have k17_h2 : k17_cond2 L k = 1#1 := cond2_iff L k
        have k17_h3 : k17_cond3 L k = 1#1 := (cond3_iff L k).mpr (by omega)
        have k17_h4 : k17_cond4 k = 1#1 := (cond4_iff k).mpr (by omega)
        have k17_h5 : k17_cond5 L k = 1#1 := (cond5_iff L k).mpr (by first | (unfold valid big at *; omega) | (unfold big at *; omega) | omega)
        have k17_h6 : k17_cond6 L k = 1#1 := (cond6_iff L k).mpr (by first | (unfold valid big at *; omega) | (unfold big at *; omega) | omega)
        have v0 : valid L (2 * k.val) := by unfold valid big at *; omega
        have v1 : valid L (2 * k.val + 1) := by unfold valid big at *; omega
        have v2 : valid L (2 * k.val + 2) := by unfold valid big at *; omega
        have v3' : valid L (2 * k.val + 3) := by unfold valid big at *; omega
        have hm0 : 2 ≤ 2 * k.val ∧ valid L (2 * k.val - 2) := ⟨by omega, by unfold valid big at *; omega⟩
        have hm1 : 2 ≤ 2 * k.val + 1 ∧ valid L (2 * k.val + 1 - 2) := ⟨by omega, by unfold valid big at *; omega⟩
        ihave S8 := (Entails.of_eq (inSlotV_pos d L fx v0)) $$ S8
        icases S8 with ⟨%g4, %hin4, F8⟩
        ihave S9 := (Entails.of_eq (inSlotV_pos d L fx v1)) $$ S9
        icases S9 with ⟨%g5, %hin5, F9⟩
        ihave S10 := (Entails.of_eq (outSlotV_pos d L fx hm0)) $$ S10
        icases S10 with ⟨%g6, F10, R6⟩
        ihave S11 := (Entails.of_eq (outSlotV_pos d L fx hm1)) $$ S11
        icases S11 with ⟨%g7, F11, R7⟩
        ihave HX := (Entails.of_eq (xSet_out (xP d L fx) k.val hk)) $$ HX
        icases HX with ⟨X2, X3, HX⟩
        ihave X2 := (Entails.of_eq (xP_pos d L fx v2)) $$ X2
        ihave X2 := (Entails.of_eq (in_congr d L (off_6 L k v2).symm (in_inb L _) (k17_off6_inb L k k17_h3) fx)) $$ X2
        ihave X3 := (Entails.of_eq (xP_pos d L fx v3')) $$ X3
        ihave X3 := (Entails.of_eq (in_congr d L (off_11 L k v3').symm (in_inb L _) (k17_off11_inb L k k17_h6) fx)) $$ X3
        ihave HOut := (Entails.of_eq (oSet_out (oMix d L fx k.val) k.val hk)) $$ HOut
        icases HOut with ⟨Y0, Y1, HOut⟩
        ihave Y0 := (Entails.of_eq ((oMix_ge d L fx (t := k.val) (n := 2 * k.val) (by omega)).trans (oP_pos (F := F) d L v0))) $$ Y0
        icases Y0 with ⟨%f0, Y0⟩
        ihave Y0 := (Entails.of_eq (out_congr d L (off_5 L k v0).symm (out_inb L _) (k17_off5_inb L k k17_h2) f0)) $$ Y0
        ihave Y1 := (Entails.of_eq ((oMix_ge d L fx (t := k.val) (n := 2 * k.val + 1) (by omega)).trans (oP_pos (F := F) d L v1))) $$ Y1
        icases Y1 with ⟨%f1, Y1⟩
        ihave Y1 := (Entails.of_eq (out_congr d L (off_10 L k v1).symm (out_inb L _) (k17_off10_inb L k k17_h5) f1)) $$ Y1
        sl_exec
        sl_for (laneV0 d L g4) $$ [F8_dst R6]
        case region =>
          intro (j : Fin k17_t2_loop.trips) _
          unfold laneV0
          iintro ⟨HA, %g, HB, %hl⟩
          sl_exec
          sl_step
          isplitl [HA]; · iexact HA
          iexists _; isplitl [HB]; · iexact HB
          ipureintro; exact lanes_step d L a4 a6 g4 g j _ _ hl
        · unfold laneV0
          isplitl [F8_dst]; · iexact F8_dst
          iexists _; isplitl [R6]; · iexact R6
          ipureintro; exact lanes_zero d L a4 a6 g4 _
        iintro %_ HI
        unfold laneV0
        icases HI with ⟨H4, %g6', H6, %hl6⟩
        have hl6 : Lanes d L a4 a6 g4 g6' 200 := Eq.mp (congrArg (Lanes d L a4 a6 g4 g6') trips2) hl6
        sl_exec
        sl_for (laneV1 d L g5) $$ [F9_dst R7]
        case region =>
          intro (j : Fin k17_t3_loop.trips) _
          unfold laneV1
          iintro ⟨HA, %g, HB, %hl⟩
          sl_exec
          sl_step
          isplitl [HA]; · iexact HA
          iexists _; isplitl [HB]; · iexact HB
          ipureintro; exact lanes_step' d L a5 a7 g5 g j _ _ hl
        · unfold laneV1
          isplitl [F9_dst]; · iexact F9_dst
          iexists _; isplitl [R7]; · iexact R7
          ipureintro; exact lanes_zero d L a5 a7 g5 _
        iintro %_ HI
        unfold laneV1
        icases HI with ⟨H5, %g7', H7, %hl7⟩
        have hl7 : Lanes d L a5 a7 g5 g7' 200 := Eq.mp (congrArg (Lanes d L a5 a7 g5 g7') trips3) hl7
        sl_exec
        sl_step
        isplitr; · iexact Hmw
        isplitl [HO]
        · iexists _; isplitr
          rotate_left
          · iexact HO
          ipureintro; intro p hp
          rcases Finset.mem_insert.mp hp with rfl | hp
          · exact .inr rfl
          rcases Finset.mem_insert.mp hp with rfl | hp
          · exact .inr rfl
          rcases Finset.mem_insert.mp hp with rfl | hp
          · exact .inr rfl
          rcases Finset.mem_insert.mp hp with rfl | hp
          · exact .inr rfl
          exact hW' p hp
        isplitl [HX F8_src F9_src]
        · iapply (Entails.of_eq (xSet_in (xP d L fx) k.val hk).symm)
          isplitl [F8_src]; · iapply (Entails.of_eq (xP_pos d L fx v0).symm); iexact F8_src
          isplitl [F9_src]; · iapply (Entails.of_eq (xP_pos d L fx v1).symm); iexact F9_src
          iexact HX
        isplitl [HOut F10_dst F11_dst]
        · iapply (Entails.of_eq (oSet_in (oMix d L fx (k.val + 1)) k.val hk (by omega)).symm)
          isplitl [F10_dst]; · iapply (Entails.of_eq ((oMix_lt d L fx (t := k.val + 1) (n := 2 * k.val - 2) (by omega)).trans (oQ_pos d L fx hm0.2)).symm); iexact F10_dst
          isplitl [F11_dst]
          · iapply (Entails.of_eq ((oMix_lt d L fx (t := k.val + 1) (n := 2 * k.val - 1) (by omega)).trans (oQ_pos d L fx (n := 2 * k.val - 1) (by have := hm1.2; rwa [show 2 * k.val + 1 - 2 = 2 * k.val - 1 by omega] at this))).symm)
            iapply (Entails.of_eq (congrArg (oqPiece d L fx) (show 2 * k.val + 1 - 2 = 2 * k.val - 1 by omega))); iexact F11_dst
          iapply (Entails.of_eq (oMix_core d L fx k.val)); iexact HOut
        isplitl [F8]
        · iapply (Entails.of_eq (congrArg (inSlotV d L fx a4 cc17_scratch4.sem) (show 2 * k.val + 2 = 2 * (k.val + 1) by ring)))
          iapply (fl_inV d L fx (off_6 L k v2) (k17_off6_inb L k k17_h3) v2 a4 cc17_scratch4.sem); iexists _, _
          isplitr
          rotate_left
          · iexact F8
          ipureintro; intro y; rfl
        isplitl [F10 H6]
        · iapply (Entails.of_eq (congrArg (outSlotV d L fx a6 cc17_scratch6.sem) (show 2 * k.val + 2 = 2 * (k.val + 1) by ring)))
          iapply (fl_outV d L fx (off_5 L k v0) (k17_off5_inb L k k17_h2) v0 a4 a6 cc17_scratch6.sem f0 g4 g6' hl6 hin4); iexists _
          isplitr
          rotate_left
          · isplitl [F10]; · iexact F10
            iexact H6
          ipureintro; intro y; rfl
        isplitl [F9]
        · iapply (Entails.of_eq (congrArg (inSlotV d L fx a5 cc17_scratch5.sem) (show 2 * k.val + 3 = 2 * (k.val + 1) + 1 by ring)))
          iapply (fl_inV d L fx (off_11 L k v3') (k17_off11_inb L k k17_h6) v3' a5 cc17_scratch5.sem); iexists _, _
          isplitr
          rotate_left
          · iexact F9
          ipureintro; intro y; rfl
        · iapply (Entails.of_eq (congrArg (outSlotV d L fx a7 cc17_scratch7.sem) (show 2 * k.val + 1 + 2 = 2 * (k.val + 1) + 1 by ring)))
          iapply (fl_outV d L fx (off_10 L k v1) (k17_off10_inb L k k17_h5) v1 a5 a7 cc17_scratch7.sem f1 g5 g7' hl7 hin5); iexists _
          isplitr
          rotate_left
          · isplitl [F11]; · iexact F11
            iexact H7
          ipureintro; intro y; rfl
      · by_cases h6 : k.val = 6
        · have hb : ¬ big L := fun hb => v3 (Or.inr ⟨by omega, hb⟩)
          -- trip 6 of a tile with fifteen pieces: no sixteenth piece to fetch
          have k17_h1 : k17_cond1 k = 1#1 := (cond1_iff k).mpr (by omega)
          have k17_h2 : k17_cond2 L k = 1#1 := cond2_iff L k
          have k17_h3 : k17_cond3 L k = 1#1 := (cond3_iff L k).mpr (by omega)
          have k17_h4 : k17_cond4 k = 1#1 := (cond4_iff k).mpr (by omega)
          have k17_h5 : k17_cond5 L k = 1#1 := (cond5_iff L k).mpr (by first | (unfold valid big at *; omega) | (unfold big at *; omega) | omega)
          have k17_h6 : ¬ k17_cond6 L k = 1#1 := fun h => absurd ((cond6_iff L k).mp h) (by first | (unfold valid big at *; omega) | (unfold big at *; omega) | omega)
          have v0 : valid L (2 * k.val) := by unfold valid big at *; omega
          have v1 : valid L (2 * k.val + 1) := by unfold valid big at *; omega
          have v2 : valid L (2 * k.val + 2) := by unfold valid big at *; omega
          have v3' : ¬ valid L (2 * k.val + 3) := by unfold valid big at *; omega
          have hm0 : 2 ≤ 2 * k.val ∧ valid L (2 * k.val - 2) := ⟨by omega, by unfold valid big at *; omega⟩
          have hm1 : 2 ≤ 2 * k.val + 1 ∧ valid L (2 * k.val + 1 - 2) := ⟨by omega, by unfold valid big at *; omega⟩
          ihave S8 := (Entails.of_eq (inSlotV_pos d L fx v0)) $$ S8
          icases S8 with ⟨%g4, %hin4, F8⟩
          ihave S9 := (Entails.of_eq (inSlotV_pos d L fx v1)) $$ S9
          icases S9 with ⟨%g5, %hin5, F9⟩
          ihave S10 := (Entails.of_eq (outSlotV_pos d L fx hm0)) $$ S10
          icases S10 with ⟨%g6, F10, R6⟩
          ihave S11 := (Entails.of_eq (outSlotV_pos d L fx hm1)) $$ S11
          icases S11 with ⟨%g7, F11, R7⟩
          ihave HX := (Entails.of_eq (xSet_out (xP d L fx) k.val hk)) $$ HX
          icases HX with ⟨X2, -, HX⟩
          ihave X2 := (Entails.of_eq (xP_pos d L fx v2)) $$ X2
          ihave X2 := (Entails.of_eq (in_congr d L (off_6 L k v2).symm (in_inb L _) (k17_off6_inb L k k17_h3) fx)) $$ X2
          ihave HOut := (Entails.of_eq (oSet_out (oMix d L fx k.val) k.val hk)) $$ HOut
          icases HOut with ⟨Y0, Y1, HOut⟩
          ihave Y0 := (Entails.of_eq ((oMix_ge d L fx (t := k.val) (n := 2 * k.val) (by omega)).trans (oP_pos (F := F) d L v0))) $$ Y0
          icases Y0 with ⟨%f0, Y0⟩
          ihave Y0 := (Entails.of_eq (out_congr d L (off_5 L k v0).symm (out_inb L _) (k17_off5_inb L k k17_h2) f0)) $$ Y0
          ihave Y1 := (Entails.of_eq ((oMix_ge d L fx (t := k.val) (n := 2 * k.val + 1) (by omega)).trans (oP_pos (F := F) d L v1))) $$ Y1
          icases Y1 with ⟨%f1, Y1⟩
          ihave Y1 := (Entails.of_eq (out_congr d L (off_10 L k v1).symm (out_inb L _) (k17_off10_inb L k k17_h5) f1)) $$ Y1
          sl_exec
          sl_for (laneV0 d L g4) $$ [F8_dst R6]
          case region =>
            intro (j : Fin k17_t2_loop.trips) _
            unfold laneV0
            iintro ⟨HA, %g, HB, %hl⟩
            sl_exec
            sl_step
            isplitl [HA]; · iexact HA
            iexists _; isplitl [HB]; · iexact HB
            ipureintro; exact lanes_step d L a4 a6 g4 g j _ _ hl
          · unfold laneV0
            isplitl [F8_dst]; · iexact F8_dst
            iexists _; isplitl [R6]; · iexact R6
            ipureintro; exact lanes_zero d L a4 a6 g4 _
          iintro %_ HI
          unfold laneV0
          icases HI with ⟨H4, %g6', H6, %hl6⟩
          have hl6 : Lanes d L a4 a6 g4 g6' 200 := Eq.mp (congrArg (Lanes d L a4 a6 g4 g6') trips2) hl6
          sl_exec
          sl_for (laneV1 d L g5) $$ [F9_dst R7]
          case region =>
            intro (j : Fin k17_t3_loop.trips) _
            unfold laneV1
            iintro ⟨HA, %g, HB, %hl⟩
            sl_exec
            sl_step
            isplitl [HA]; · iexact HA
            iexists _; isplitl [HB]; · iexact HB
            ipureintro; exact lanes_step' d L a5 a7 g5 g j _ _ hl
          · unfold laneV1
            isplitl [F9_dst]; · iexact F9_dst
            iexists _; isplitl [R7]; · iexact R7
            ipureintro; exact lanes_zero d L a5 a7 g5 _
          iintro %_ HI
          unfold laneV1
          icases HI with ⟨H5, %g7', H7, %hl7⟩
          have hl7 : Lanes d L a5 a7 g5 g7' 200 := Eq.mp (congrArg (Lanes d L a5 a7 g5 g7') trips3) hl7
          sl_exec
          sl_step
          isplitr; · iexact Hmw
          isplitl [HO]
          · iexists _; isplitr
            rotate_left
            · iexact HO
            ipureintro; intro p hp
            rcases Finset.mem_insert.mp hp with rfl | hp
            · exact .inr rfl
            rcases Finset.mem_insert.mp hp with rfl | hp
            · exact .inr rfl
            rcases Finset.mem_insert.mp hp with rfl | hp
            · exact .inr rfl
            rcases Finset.mem_insert.mp hp with rfl | hp
            · exact .inr rfl
            exact hW' p hp
          isplitl [HX F8_src F9_src]
          · iapply (Entails.of_eq (xSet_in (xP d L fx) k.val hk).symm)
            isplitl [F8_src]; · iapply (Entails.of_eq (xP_pos d L fx v0).symm); iexact F8_src
            isplitl [F9_src]; · iapply (Entails.of_eq (xP_pos d L fx v1).symm); iexact F9_src
            iexact HX
          isplitl [HOut F10_dst F11_dst]
          · iapply (Entails.of_eq (oSet_in (oMix d L fx (k.val + 1)) k.val hk (by omega)).symm)
            isplitl [F10_dst]; · iapply (Entails.of_eq ((oMix_lt d L fx (t := k.val + 1) (n := 2 * k.val - 2) (by omega)).trans (oQ_pos d L fx hm0.2)).symm); iexact F10_dst
            isplitl [F11_dst]
            · iapply (Entails.of_eq ((oMix_lt d L fx (t := k.val + 1) (n := 2 * k.val - 1) (by omega)).trans (oQ_pos d L fx (n := 2 * k.val - 1) (by have := hm1.2; rwa [show 2 * k.val + 1 - 2 = 2 * k.val - 1 by omega] at this))).symm)
              iapply (Entails.of_eq (congrArg (oqPiece d L fx) (show 2 * k.val + 1 - 2 = 2 * k.val - 1 by omega))); iexact F11_dst
            iapply (Entails.of_eq (oMix_core d L fx k.val)); iexact HOut
          isplitl [F8]
          · iapply (Entails.of_eq (congrArg (inSlotV d L fx a4 cc17_scratch4.sem) (show 2 * k.val + 2 = 2 * (k.val + 1) by ring)))
            iapply (fl_inV d L fx (off_6 L k v2) (k17_off6_inb L k k17_h3) v2 a4 cc17_scratch4.sem); iexists _, _
            isplitr
            rotate_left
            · iexact F8
            ipureintro; intro y; rfl
          isplitl [F10 H6]
          · iapply (Entails.of_eq (congrArg (outSlotV d L fx a6 cc17_scratch6.sem) (show 2 * k.val + 2 = 2 * (k.val + 1) by ring)))
            iapply (fl_outV d L fx (off_5 L k v0) (k17_off5_inb L k k17_h2) v0 a4 a6 cc17_scratch6.sem f0 g4 g6' hl6 hin4); iexists _
            isplitr
            rotate_left
            · isplitl [F10]; · iexact F10
              iexact H6
            ipureintro; intro y; rfl
          isplitl [H5 F9]
          · iapply (Entails.of_eq (congrArg (inSlotV d L fx a5 cc17_scratch5.sem) (show 2 * k.val + 3 = 2 * (k.val + 1) + 1 by ring)))
            iapply (Entails.of_eq (inSlotV_neg d L fx v3').symm)
            isplitl [H5]; · iexists _; iexact H5
            iexact F9
          · iapply (Entails.of_eq (congrArg (outSlotV d L fx a7 cc17_scratch7.sem) (show 2 * k.val + 1 + 2 = 2 * (k.val + 1) + 1 by ring)))
            iapply (fl_outV d L fx (off_10 L k v1) (k17_off10_inb L k k17_h5) v1 a5 a7 cc17_scratch7.sem f1 g5 g7' hl7 hin5); iexists _
            isplitr
            rotate_left
            · isplitl [F11]; · iexact F11
              iexact H7
            ipureintro; intro y; rfl
        · have h7 : k.val = 7 := by unfold valid at v3; omega
          by_cases hb : big L
          · -- the last trip of a tile with sixteen pieces: nothing more to fetch
            have k17_h1 : k17_cond1 k = 1#1 := (cond1_iff k).mpr (by omega)
            have k17_h2 : k17_cond2 L k = 1#1 := cond2_iff L k
            have k17_h3 : ¬ k17_cond3 L k = 1#1 := fun h => absurd ((cond3_iff L k).mp h) (by omega)
            have k17_h4 : k17_cond4 k = 1#1 := (cond4_iff k).mpr (by omega)
            have k17_h5 : k17_cond5 L k = 1#1 := (cond5_iff L k).mpr (by first | (unfold valid big at *; omega) | (unfold big at *; omega) | omega)
            have k17_h6 : ¬ k17_cond6 L k = 1#1 := fun h => absurd ((cond6_iff L k).mp h) (by first | (unfold valid big at *; omega) | (unfold big at *; omega) | omega)
            have v0 : valid L (2 * k.val) := by unfold valid big at *; omega
            have v1 : valid L (2 * k.val + 1) := by unfold valid big at *; omega
            have v2 : ¬ valid L (2 * k.val + 2) := by unfold valid big at *; omega
            have v3' : ¬ valid L (2 * k.val + 3) := by unfold valid big at *; omega
            have hm0 : 2 ≤ 2 * k.val ∧ valid L (2 * k.val - 2) := ⟨by omega, by unfold valid big at *; omega⟩
            have hm1 : 2 ≤ 2 * k.val + 1 ∧ valid L (2 * k.val + 1 - 2) := ⟨by omega, by unfold valid big at *; omega⟩
            ihave S8 := (Entails.of_eq (inSlotV_pos d L fx v0)) $$ S8
            icases S8 with ⟨%g4, %hin4, F8⟩
            ihave S9 := (Entails.of_eq (inSlotV_pos d L fx v1)) $$ S9
            icases S9 with ⟨%g5, %hin5, F9⟩
            ihave S10 := (Entails.of_eq (outSlotV_pos d L fx hm0)) $$ S10
            icases S10 with ⟨%g6, F10, R6⟩
            ihave S11 := (Entails.of_eq (outSlotV_pos d L fx hm1)) $$ S11
            icases S11 with ⟨%g7, F11, R7⟩
            ihave HX := (Entails.of_eq (xSet_out (xP d L fx) k.val hk)) $$ HX
            icases HX with ⟨-, -, HX⟩
            ihave HOut := (Entails.of_eq (oSet_out (oMix d L fx k.val) k.val hk)) $$ HOut
            icases HOut with ⟨Y0, Y1, HOut⟩
            ihave Y0 := (Entails.of_eq ((oMix_ge d L fx (t := k.val) (n := 2 * k.val) (by omega)).trans (oP_pos (F := F) d L v0))) $$ Y0
            icases Y0 with ⟨%f0, Y0⟩
            ihave Y0 := (Entails.of_eq (out_congr d L (off_5 L k v0).symm (out_inb L _) (k17_off5_inb L k k17_h2) f0)) $$ Y0
            ihave Y1 := (Entails.of_eq ((oMix_ge d L fx (t := k.val) (n := 2 * k.val + 1) (by omega)).trans (oP_pos (F := F) d L v1))) $$ Y1
            icases Y1 with ⟨%f1, Y1⟩
            ihave Y1 := (Entails.of_eq (out_congr d L (off_10 L k v1).symm (out_inb L _) (k17_off10_inb L k k17_h5) f1)) $$ Y1
            sl_exec
            sl_for (laneV0 d L g4) $$ [F8_dst R6]
            case region =>
              intro (j : Fin k17_t2_loop.trips) _
              unfold laneV0
              iintro ⟨HA, %g, HB, %hl⟩
              sl_exec
              sl_step
              isplitl [HA]; · iexact HA
              iexists _; isplitl [HB]; · iexact HB
              ipureintro; exact lanes_step d L a4 a6 g4 g j _ _ hl
            · unfold laneV0
              isplitl [F8_dst]; · iexact F8_dst
              iexists _; isplitl [R6]; · iexact R6
              ipureintro; exact lanes_zero d L a4 a6 g4 _
            iintro %_ HI
            unfold laneV0
            icases HI with ⟨H4, %g6', H6, %hl6⟩
            have hl6 : Lanes d L a4 a6 g4 g6' 200 := Eq.mp (congrArg (Lanes d L a4 a6 g4 g6') trips2) hl6
            sl_exec
            sl_for (laneV1 d L g5) $$ [F9_dst R7]
            case region =>
              intro (j : Fin k17_t3_loop.trips) _
              unfold laneV1
              iintro ⟨HA, %g, HB, %hl⟩
              sl_exec
              sl_step
              isplitl [HA]; · iexact HA
              iexists _; isplitl [HB]; · iexact HB
              ipureintro; exact lanes_step' d L a5 a7 g5 g j _ _ hl
            · unfold laneV1
              isplitl [F9_dst]; · iexact F9_dst
              iexists _; isplitl [R7]; · iexact R7
              ipureintro; exact lanes_zero d L a5 a7 g5 _
            iintro %_ HI
            unfold laneV1
            icases HI with ⟨H5, %g7', H7, %hl7⟩
            have hl7 : Lanes d L a5 a7 g5 g7' 200 := Eq.mp (congrArg (Lanes d L a5 a7 g5 g7') trips3) hl7
            sl_exec
            sl_step
            isplitr; · iexact Hmw
            isplitl [HO]
            · iexists _; isplitr
              rotate_left
              · iexact HO
              ipureintro; intro p hp
              rcases Finset.mem_insert.mp hp with rfl | hp
              · exact .inr rfl
              rcases Finset.mem_insert.mp hp with rfl | hp
              · exact .inr rfl
              rcases Finset.mem_insert.mp hp with rfl | hp
              · exact .inr rfl
              rcases Finset.mem_insert.mp hp with rfl | hp
              · exact .inr rfl
              exact hW' p hp
            isplitl [HX F8_src F9_src]
            · iapply (Entails.of_eq (xSet_in (xP d L fx) k.val hk).symm)
              isplitl [F8_src]; · iapply (Entails.of_eq (xP_pos d L fx v0).symm); iexact F8_src
              isplitl [F9_src]; · iapply (Entails.of_eq (xP_pos d L fx v1).symm); iexact F9_src
              iexact HX
            isplitl [HOut F10_dst F11_dst]
            · iapply (Entails.of_eq (oSet_in (oMix d L fx (k.val + 1)) k.val hk (by omega)).symm)
              isplitl [F10_dst]; · iapply (Entails.of_eq ((oMix_lt d L fx (t := k.val + 1) (n := 2 * k.val - 2) (by omega)).trans (oQ_pos d L fx hm0.2)).symm); iexact F10_dst
              isplitl [F11_dst]
              · iapply (Entails.of_eq ((oMix_lt d L fx (t := k.val + 1) (n := 2 * k.val - 1) (by omega)).trans (oQ_pos d L fx (n := 2 * k.val - 1) (by have := hm1.2; rwa [show 2 * k.val + 1 - 2 = 2 * k.val - 1 by omega] at this))).symm)
                iapply (Entails.of_eq (congrArg (oqPiece d L fx) (show 2 * k.val + 1 - 2 = 2 * k.val - 1 by omega))); iexact F11_dst
              iapply (Entails.of_eq (oMix_core d L fx k.val)); iexact HOut
            isplitl [H4 F8]
            · iapply (Entails.of_eq (congrArg (inSlotV d L fx a4 cc17_scratch4.sem) (show 2 * k.val + 2 = 2 * (k.val + 1) by ring)))
              iapply (Entails.of_eq (inSlotV_neg d L fx v2).symm)
              isplitl [H4]; · iexists _; iexact H4
              iexact F8
            isplitl [F10 H6]
            · iapply (Entails.of_eq (congrArg (outSlotV d L fx a6 cc17_scratch6.sem) (show 2 * k.val + 2 = 2 * (k.val + 1) by ring)))
              iapply (fl_outV d L fx (off_5 L k v0) (k17_off5_inb L k k17_h2) v0 a4 a6 cc17_scratch6.sem f0 g4 g6' hl6 hin4); iexists _
              isplitr
              rotate_left
              · isplitl [F10]; · iexact F10
                iexact H6
              ipureintro; intro y; rfl
            isplitl [H5 F9]
            · iapply (Entails.of_eq (congrArg (inSlotV d L fx a5 cc17_scratch5.sem) (show 2 * k.val + 3 = 2 * (k.val + 1) + 1 by ring)))
              iapply (Entails.of_eq (inSlotV_neg d L fx v3').symm)
              isplitl [H5]; · iexists _; iexact H5
              iexact F9
            · iapply (Entails.of_eq (congrArg (outSlotV d L fx a7 cc17_scratch7.sem) (show 2 * k.val + 1 + 2 = 2 * (k.val + 1) + 1 by ring)))
              iapply (fl_outV d L fx (off_10 L k v1) (k17_off10_inb L k k17_h5) v1 a5 a7 cc17_scratch7.sem f1 g5 g7' hl7 hin5); iexists _
              isplitr
              rotate_left
              · isplitl [F11]; · iexact F11
                iexact H7
              ipureintro; intro y; rfl
          · -- the last trip of a tile with fifteen pieces: the second slot only drains
            have k17_h1 : k17_cond1 k = 1#1 := (cond1_iff k).mpr (by omega)
            have k17_h2 : k17_cond2 L k = 1#1 := cond2_iff L k
            have k17_h3 : ¬ k17_cond3 L k = 1#1 := fun h => absurd ((cond3_iff L k).mp h) (by omega)
            have k17_h4 : k17_cond4 k = 1#1 := (cond4_iff k).mpr (by omega)
            have k17_h5 : ¬ k17_cond5 L k = 1#1 := fun h => absurd ((cond5_iff L k).mp h) (by first | (unfold valid big at *; omega) | (unfold big at *; omega) | omega)
            have k17_h6 : ¬ k17_cond6 L k = 1#1 := fun h => absurd ((cond6_iff L k).mp h) (by first | (unfold valid big at *; omega) | (unfold big at *; omega) | omega)
            have v0 : valid L (2 * k.val) := by unfold valid big at *; omega
            have v1 : ¬ valid L (2 * k.val + 1) := by unfold valid big at *; omega
            have v2 : ¬ valid L (2 * k.val + 2) := by unfold valid big at *; omega
            have v3' : ¬ valid L (2 * k.val + 3) := by unfold valid big at *; omega
            have hm0 : 2 ≤ 2 * k.val ∧ valid L (2 * k.val - 2) := ⟨by omega, by unfold valid big at *; omega⟩
            have hm1 : 2 ≤ 2 * k.val + 1 ∧ valid L (2 * k.val + 1 - 2) := ⟨by omega, by unfold valid big at *; omega⟩
            ihave S8 := (Entails.of_eq (inSlotV_pos d L fx v0)) $$ S8
            icases S8 with ⟨%g4, %hin4, F8⟩
            ihave S9 := (Entails.of_eq (inSlotV_neg d L fx v1)) $$ S9
            icases S9 with ⟨⟨%g5, H5⟩, F9⟩
            ihave S10 := (Entails.of_eq (outSlotV_pos d L fx hm0)) $$ S10
            icases S10 with ⟨%g6, F10, R6⟩
            ihave S11 := (Entails.of_eq (outSlotV_pos d L fx hm1)) $$ S11
            icases S11 with ⟨%g7, F11, R7⟩
            ihave HX := (Entails.of_eq (xSet_out (xP d L fx) k.val hk)) $$ HX
            icases HX with ⟨-, -, HX⟩
            ihave HOut := (Entails.of_eq (oSet_out (oMix d L fx k.val) k.val hk)) $$ HOut
            icases HOut with ⟨Y0, -, HOut⟩
            ihave Y0 := (Entails.of_eq ((oMix_ge d L fx (t := k.val) (n := 2 * k.val) (by omega)).trans (oP_pos (F := F) d L v0))) $$ Y0
            icases Y0 with ⟨%f0, Y0⟩
            ihave Y0 := (Entails.of_eq (out_congr d L (off_5 L k v0).symm (out_inb L _) (k17_off5_inb L k k17_h2) f0)) $$ Y0
            sl_exec
            sl_for (laneV0 d L g4) $$ [F8_dst R6]
            case region =>
              intro (j : Fin k17_t2_loop.trips) _
              unfold laneV0
              iintro ⟨HA, %g, HB, %hl⟩
              sl_exec
              sl_step
              isplitl [HA]; · iexact HA
              iexists _; isplitl [HB]; · iexact HB
              ipureintro; exact lanes_step d L a4 a6 g4 g j _ _ hl
            · unfold laneV0
              isplitl [F8_dst]; · iexact F8_dst
              iexists _; isplitl [R6]; · iexact R6
              ipureintro; exact lanes_zero d L a4 a6 g4 _
            iintro %_ HI
            unfold laneV0
            icases HI with ⟨H4, %g6', H6, %hl6⟩
            have hl6 : Lanes d L a4 a6 g4 g6' 200 := Eq.mp (congrArg (Lanes d L a4 a6 g4 g6') trips2) hl6
            sl_exec
            sl_step
            isplitr; · iexact Hmw
            isplitl [HO]
            · iexists _; isplitr
              rotate_left
              · iexact HO
              ipureintro; intro p hp
              rcases Finset.mem_insert.mp hp with rfl | hp
              · exact .inr rfl
              rcases Finset.mem_insert.mp hp with rfl | hp
              · exact .inr rfl
              rcases Finset.mem_insert.mp hp with rfl | hp
              · exact .inr rfl
              exact hW' p hp
            isplitl [HX F8_src]
            · iapply (Entails.of_eq (xSet_in (xP d L fx) k.val hk).symm)
              isplitl [F8_src]; · iapply (Entails.of_eq (xP_pos d L fx v0).symm); iexact F8_src
              isplitr; · iapply (Entails.of_eq (xP_neg d L fx v1).symm); iempintro
              iexact HX
            isplitl [HOut F10_dst F11_dst]
            · iapply (Entails.of_eq (oSet_in (oMix d L fx (k.val + 1)) k.val hk (by omega)).symm)
              isplitl [F10_dst]; · iapply (Entails.of_eq ((oMix_lt d L fx (t := k.val + 1) (n := 2 * k.val - 2) (by omega)).trans (oQ_pos d L fx hm0.2)).symm); iexact F10_dst
              isplitl [F11_dst]
              · iapply (Entails.of_eq ((oMix_lt d L fx (t := k.val + 1) (n := 2 * k.val - 1) (by omega)).trans (oQ_pos d L fx (n := 2 * k.val - 1) (by have := hm1.2; rwa [show 2 * k.val + 1 - 2 = 2 * k.val - 1 by omega] at this))).symm)
                iapply (Entails.of_eq (congrArg (oqPiece d L fx) (show 2 * k.val + 1 - 2 = 2 * k.val - 1 by omega))); iexact F11_dst
              iapply (Entails.of_eq (oMix_core d L fx k.val)); iexact HOut
            isplitl [H4 F8]
            · iapply (Entails.of_eq (congrArg (inSlotV d L fx a4 cc17_scratch4.sem) (show 2 * k.val + 2 = 2 * (k.val + 1) by ring)))
              iapply (Entails.of_eq (inSlotV_neg d L fx v2).symm)
              isplitl [H4]; · iexists _; iexact H4
              iexact F8
            isplitl [F10 H6]
            · iapply (Entails.of_eq (congrArg (outSlotV d L fx a6 cc17_scratch6.sem) (show 2 * k.val + 2 = 2 * (k.val + 1) by ring)))
              iapply (fl_outV d L fx (off_5 L k v0) (k17_off5_inb L k k17_h2) v0 a4 a6 cc17_scratch6.sem f0 g4 g6' hl6 hin4); iexists _
              isplitr
              rotate_left
              · isplitl [F10]; · iexact F10
                iexact H6
              ipureintro; intro y; rfl
            isplitl [H5 F9]
            · iapply (Entails.of_eq (congrArg (inSlotV d L fx a5 cc17_scratch5.sem) (show 2 * k.val + 3 = 2 * (k.val + 1) + 1 by ring)))
              iapply (Entails.of_eq (inSlotV_neg d L fx v3').symm)
              isplitl [H5]; · iexists _; iexact H5
              iexact F9
            · iapply (Entails.of_eq (outSlotV_neg d L fx (m := 2 * (k.val + 1) + 1) (by intro h; apply v1; have := h.2; rwa [show 2 * (k.val + 1) + 1 - 2 = 2 * k.val + 1 by omega] at this)).symm)
              isplitl [R7]; · iexists _; iexact R7
              iexact F11
    · have hk0 : k.val = 0 := by omega
      -- the first trip: nothing to drain
      have k17_h1 : ¬ k17_cond1 k = 1#1 := fun h => absurd ((cond1_iff k).mp h) (by omega)
      have k17_h2 : k17_cond2 L k = 1#1 := cond2_iff L k
      have k17_h3 : k17_cond3 L k = 1#1 := (cond3_iff L k).mpr (by omega)
      have k17_h4 : ¬ k17_cond4 k = 1#1 := fun h => absurd ((cond4_iff k).mp h) (by omega)
      have k17_h5 : k17_cond5 L k = 1#1 := (cond5_iff L k).mpr (by first | (unfold valid big at *; omega) | (unfold big at *; omega) | omega)
      have k17_h6 : k17_cond6 L k = 1#1 := (cond6_iff L k).mpr (by first | (unfold valid big at *; omega) | (unfold big at *; omega) | omega)
      have v0 : valid L (2 * k.val) := by unfold valid big at *; omega
      have v1 : valid L (2 * k.val + 1) := by unfold valid big at *; omega
      have v2 : valid L (2 * k.val + 2) := by unfold valid big at *; omega
      have v3' : valid L (2 * k.val + 3) := by unfold valid big at *; omega
      have hm0 : ¬ (2 ≤ 2 * k.val ∧ valid L (2 * k.val - 2)) := by omega
      have hm1 : ¬ (2 ≤ 2 * k.val + 1 ∧ valid L (2 * k.val + 1 - 2)) := by omega
      ihave S8 := (Entails.of_eq (inSlotV_pos d L fx v0)) $$ S8
      icases S8 with ⟨%g4, %hin4, F8⟩
      ihave S9 := (Entails.of_eq (inSlotV_pos d L fx v1)) $$ S9
      icases S9 with ⟨%g5, %hin5, F9⟩
      ihave S10 := (Entails.of_eq (outSlotV_neg d L fx hm0)) $$ S10
      icases S10 with ⟨⟨%g6, R6⟩, F10⟩
      ihave S11 := (Entails.of_eq (outSlotV_neg d L fx hm1)) $$ S11
      icases S11 with ⟨⟨%g7, R7⟩, F11⟩
      ihave HX := (Entails.of_eq (xSet_out (xP d L fx) k.val hk)) $$ HX
      icases HX with ⟨X2, X3, HX⟩
      ihave X2 := (Entails.of_eq (xP_pos d L fx v2)) $$ X2
      ihave X2 := (Entails.of_eq (in_congr d L (off_6 L k v2).symm (in_inb L _) (k17_off6_inb L k k17_h3) fx)) $$ X2
      ihave X3 := (Entails.of_eq (xP_pos d L fx v3')) $$ X3
      ihave X3 := (Entails.of_eq (in_congr d L (off_11 L k v3').symm (in_inb L _) (k17_off11_inb L k k17_h6) fx)) $$ X3
      ihave HOut := (Entails.of_eq (oSet_out (oMix d L fx k.val) k.val hk)) $$ HOut
      icases HOut with ⟨Y0, Y1, HOut⟩
      ihave Y0 := (Entails.of_eq ((oMix_ge d L fx (t := k.val) (n := 2 * k.val) (by omega)).trans (oP_pos (F := F) d L v0))) $$ Y0
      icases Y0 with ⟨%f0, Y0⟩
      ihave Y0 := (Entails.of_eq (out_congr d L (off_5 L k v0).symm (out_inb L _) (k17_off5_inb L k k17_h2) f0)) $$ Y0
      ihave Y1 := (Entails.of_eq ((oMix_ge d L fx (t := k.val) (n := 2 * k.val + 1) (by omega)).trans (oP_pos (F := F) d L v1))) $$ Y1
      icases Y1 with ⟨%f1, Y1⟩
      ihave Y1 := (Entails.of_eq (out_congr d L (off_10 L k v1).symm (out_inb L _) (k17_off10_inb L k k17_h5) f1)) $$ Y1
      sl_exec
      sl_for (laneV0 d L g4) $$ [F8_dst R6]
      case region =>
        intro (j : Fin k17_t2_loop.trips) _
        unfold laneV0
        iintro ⟨HA, %g, HB, %hl⟩
        sl_exec
        sl_step
        isplitl [HA]; · iexact HA
        iexists _; isplitl [HB]; · iexact HB
        ipureintro; exact lanes_step d L a4 a6 g4 g j _ _ hl
      · unfold laneV0
        isplitl [F8_dst]; · iexact F8_dst
        iexists _; isplitl [R6]; · iexact R6
        ipureintro; exact lanes_zero d L a4 a6 g4 _
      iintro %_ HI
      unfold laneV0
      icases HI with ⟨H4, %g6', H6, %hl6⟩
      have hl6 : Lanes d L a4 a6 g4 g6' 200 := Eq.mp (congrArg (Lanes d L a4 a6 g4 g6') trips2) hl6
      sl_exec
      sl_for (laneV1 d L g5) $$ [F9_dst R7]
      case region =>
        intro (j : Fin k17_t3_loop.trips) _
        unfold laneV1
        iintro ⟨HA, %g, HB, %hl⟩
        sl_exec
        sl_step
        isplitl [HA]; · iexact HA
        iexists _; isplitl [HB]; · iexact HB
        ipureintro; exact lanes_step' d L a5 a7 g5 g j _ _ hl
      · unfold laneV1
        isplitl [F9_dst]; · iexact F9_dst
        iexists _; isplitl [R7]; · iexact R7
        ipureintro; exact lanes_zero d L a5 a7 g5 _
      iintro %_ HI
      unfold laneV1
      icases HI with ⟨H5, %g7', H7, %hl7⟩
      have hl7 : Lanes d L a5 a7 g5 g7' 200 := Eq.mp (congrArg (Lanes d L a5 a7 g5 g7') trips3) hl7
      sl_exec
      sl_step
      isplitr; · iexact Hmw
      isplitl [HO]
      · iexists _; isplitr
        rotate_left
        · iexact HO
        ipureintro; intro p hp
        rcases Finset.mem_insert.mp hp with rfl | hp
        · exact .inr rfl
        rcases Finset.mem_insert.mp hp with rfl | hp
        · exact .inr rfl
        exact hW' p hp
      isplitl [HX F8_src F9_src]
      · iapply (Entails.of_eq (xSet_in (xP d L fx) k.val hk).symm)
        isplitl [F8_src]; · iapply (Entails.of_eq (xP_pos d L fx v0).symm); iexact F8_src
        isplitl [F9_src]; · iapply (Entails.of_eq (xP_pos d L fx v1).symm); iexact F9_src
        iexact HX
      isplitl [HOut]
      · iapply (Entails.of_eq (congrArg (fun s => bigSep s (oMix d L fx (k.val + 1))) (show oCore k.val = oSet (k.val + 1) by rw [hk0]; decide)))
        iapply (Entails.of_eq (oMix_core d L fx k.val)); iexact HOut
      isplitl [F8]
      · iapply (Entails.of_eq (congrArg (inSlotV d L fx a4 cc17_scratch4.sem) (show 2 * k.val + 2 = 2 * (k.val + 1) by ring)))
        iapply (fl_inV d L fx (off_6 L k v2) (k17_off6_inb L k k17_h3) v2 a4 cc17_scratch4.sem); iexists _, _
        isplitr
        rotate_left
        · iexact F8
        ipureintro; intro y; rfl
      isplitl [F10 H6]
      · iapply (Entails.of_eq (congrArg (outSlotV d L fx a6 cc17_scratch6.sem) (show 2 * k.val + 2 = 2 * (k.val + 1) by ring)))
        iapply (fl_outV d L fx (off_5 L k v0) (k17_off5_inb L k k17_h2) v0 a4 a6 cc17_scratch6.sem f0 g4 g6' hl6 hin4); iexists _
        isplitr
        rotate_left
        · isplitl [F10]; · iexact F10
          iexact H6
        ipureintro; intro y; rfl
      isplitl [F9]
      · iapply (Entails.of_eq (congrArg (inSlotV d L fx a5 cc17_scratch5.sem) (show 2 * k.val + 3 = 2 * (k.val + 1) + 1 by ring)))
        iapply (fl_inV d L fx (off_11 L k v3') (k17_off11_inb L k k17_h6) v3' a5 cc17_scratch5.sem); iexists _, _
        isplitr
        rotate_left
        · iexact F9
        ipureintro; intro y; rfl
      · iapply (Entails.of_eq (congrArg (outSlotV d L fx a7 cc17_scratch7.sem) (show 2 * k.val + 1 + 2 = 2 * (k.val + 1) + 1 by ring)))
        iapply (fl_outV d L fx (off_10 L k v1) (k17_off10_inb L k k17_h5) v1 a5 a7 cc17_scratch7.sem f1 g5 g7' hl7 hin5); iexists _
        isplitr
        rotate_left
        · isplitl [F11]; · iexact F11
          iexact H7
        ipureintro; intro y; rfl
  · unfold invV
    isplitr; · iexact Hmw
    isplitl [HO]
    · iexists W; isplitr
      · ipureintro; exact fun p hp => .inl hp
      · iexact HO
    isplitl [HX]; · iexact HX
    isplitl [HOut]; · iapply (Entails.of_eq (oMix_zero d L fx).symm); iexact HOut
    isplitl [S8]; · iexact S8
    isplitl [H6 Hs10]
    · rw [outSlotV_neg d L fx (by omega)]; isplitl [H6]; · iexists _; iexact H6
      iexact Hs10
    isplitl [S9]; · iexact S9
    rw [outSlotV_neg d L fx (by omega)]; isplitl [H7]; · iexists _; iexact H7
    iexact Hs11
  iintro %acc' HI
  ihave HI := (Entails.of_eq (congrArg (fun t => invV d L O W fx t acc') trips1)) $$ HI
  unfold invV
  icases HI with ⟨-, ⟨%W', %hW', HO⟩, HX, HOut, S8, S10, S9, S11⟩
  have nv16 : ¬ valid L (2 * 8) := by unfold valid; omega
  have nv17 : ¬ valid L (2 * 8 + 1) := by unfold valid; omega
  have hm14 : 2 ≤ 2 * 8 ∧ valid L (2 * 8 - 2) := ⟨by omega, Or.inl (by omega)⟩
  ihave S8 := (Entails.of_eq (inSlotV_neg d L fx nv16)) $$ S8
  icases S8 with ⟨⟨%g4', H4⟩, Hs8⟩
  ihave S9 := (Entails.of_eq (inSlotV_neg d L fx nv17)) $$ S9
  icases S9 with ⟨⟨%g5', H5⟩, Hs9⟩
  ihave S10 := (Entails.of_eq (outSlotV_pos d L fx hm14)) $$ S10
  icases S10 with ⟨%g6', F10, R6⟩
  by_cases hb : big L
  · have k17_h8 : k17_cond8 L = 1#1 := (cond8_iff L).mpr hb
    have hm15 : 2 ≤ 2 * 8 + 1 ∧ valid L (2 * 8 + 1 - 2) := ⟨by omega, Or.inr ⟨by omega, hb⟩⟩
    ihave S11 := (Entails.of_eq (outSlotV_pos d L fx hm15)) $$ S11
    icases S11 with ⟨%g7', F11, R7⟩
    sl_exec
    sl_step
    isplitl [HX]; · iapply (xRange_end d L fx); iexact HX
    isplitl [HOut F10_dst F11_dst]
    · iapply (Entails.of_eq (oRange_end (oQ d L fx)).symm)
      isplitl [F10_dst]; · iapply (Entails.of_eq (oQ_pos d L fx hm14.2).symm); iexact F10_dst
      isplitl [F11_dst]; · iapply (Entails.of_eq (oQ_pos d L fx hm15.2).symm); iexact F11_dst
      iapply (Entails.of_eq (oMix_end d L fx)); iexact HOut
    isplitl [H4]; · iexists _; iexact H4
    isplitl [H5]; · iexists _; iexact H5
    isplitl [R6]; · iexists _; iexact R6
    isplitl [R7]; · iexists _; iexact R7
    isplitl [Hs8]; · iexact Hs8
    isplitl [Hs9]; · iexact Hs9
    isplitl [F10]; · iexact F10
    isplitl [F11]; · iexact F11
    isplitl [HO]
    · iexists _; isplitr
      rotate_left
      · iexact HO
      ipureintro; intro p hp
      rcases Finset.mem_insert.mp hp with rfl | hp
      · exact .inr rfl
      rcases Finset.mem_insert.mp hp with rfl | hp
      · exact .inr rfl
      exact hW' p hp
    iexact HR
  · have k17_h8 : ¬ k17_cond8 L = 1#1 := fun h => hb ((cond8_iff L).mp h)
    have hm15 : ¬ (2 ≤ 2 * 8 + 1 ∧ valid L (2 * 8 + 1 - 2)) := by intro h; have := h.2; unfold valid at this; omega
    ihave S11 := (Entails.of_eq (outSlotV_neg d L fx hm15)) $$ S11
    icases S11 with ⟨⟨%g7', R7⟩, F11⟩
    sl_exec
    sl_step
    isplitl [HX]; · iapply (xRange_end d L fx); iexact HX
    isplitl [HOut F10_dst]
    · iapply (Entails.of_eq (oRange_end (oQ d L fx)).symm)
      isplitl [F10_dst]; · iapply (Entails.of_eq (oQ_pos d L fx hm14.2).symm); iexact F10_dst
      isplitr; · iapply (Entails.of_eq (oQ_neg d L fx (n := 15) (by unfold valid; omega)).symm); iempintro
      iapply (Entails.of_eq (oMix_end d L fx)); iexact HOut
    isplitl [H4]; · iexists _; iexact H4
    isplitl [H5]; · iexists _; iexact H5
    isplitl [R6]; · iexists _; iexact R6
    isplitl [R7]; · iexists _; iexact R7
    isplitl [Hs8]; · iexact Hs8
    isplitl [Hs9]; · iexact Hs9
    isplitl [F10]; · iexact F10
    isplitl [F11]; · iexact F11
    isplitl [HO]
    · iexists _; isplitr
      rotate_left
      · iexact HO
      ipureintro; intro p hp
      rcases Finset.mem_insert.mp hp with rfl | hp
      · exact .inr rfl
      exact hW' p hp
    iexact HR

/-! The subcore's scoped storage: the four staging buffers and the four semaphores of this call, and the rest. -/

abbrev c8 : GSem nD τ sig := (thr d L, SemLoc.dma cc17_scratch4.sem)
abbrev c9 : GSem nD τ sig := (thr d L, SemLoc.dma cc17_scratch5.sem)
abbrev c10 : GSem nD τ sig := (thr d L, SemLoc.dma cc17_scratch6.sem)
abbrev c11 : GSem nD τ sig := (thr d L, SemLoc.dma cc17_scratch7.sem)

omit [FloatOps F] in
theorem ownSems0_V :
    (ownSems0 (thr d L) : sProp 𝕄)
      = iprop(semVal (c8 d L) 0 ∗ semVal (c9 d L) 0 ∗ semVal (c10 d L) 0 ∗ semVal (c11 d L) 0
          ∗ bigSep (((((ownCells (thr d L)).erase (c8 d L)).erase (c9 d L)).erase (c10 d L)).erase (c11 d L)) fun g => semVal g 0) := by
  unfold SparseCore.Cfg.ownSems0
  rw [SparseCore.bigSep_erase' ((mem_ownCells (g := c8 d L)).mpr ⟨rfl, by
      show (SemLoc.dma cc17_scratch4.sem : SemLoc sig).isScoped .scVector = true; decide⟩),
    SparseCore.bigSep_erase' (Finset.mem_erase.mpr ⟨fun e => absurd (Prod.mk.inj e).2 (by decide), (mem_ownCells (g := c9 d L)).mpr ⟨rfl, by
      show (SemLoc.dma cc17_scratch5.sem : SemLoc sig).isScoped .scVector = true; decide⟩⟩),
    SparseCore.bigSep_erase' (Finset.mem_erase.mpr ⟨fun e => absurd (Prod.mk.inj e).2 (by decide), Finset.mem_erase.mpr ⟨fun e => absurd (Prod.mk.inj e).2 (by decide),
      (mem_ownCells (g := c10 d L)).mpr ⟨rfl, by show (SemLoc.dma cc17_scratch6.sem : SemLoc sig).isScoped .scVector = true; decide⟩⟩⟩),
    SparseCore.bigSep_erase' (Finset.mem_erase.mpr ⟨fun e => absurd (Prod.mk.inj e).2 (by decide), Finset.mem_erase.mpr ⟨fun e => absurd (Prod.mk.inj e).2 (by decide),
      Finset.mem_erase.mpr ⟨fun e => absurd (Prod.mk.inj e).2 (by decide),
      (mem_ownCells (g := c11 d L)).mpr ⟨rfl, by show (SemLoc.dma cc17_scratch7.sem : SemLoc sig).isScoped .scVector = true; decide⟩⟩⟩⟩)]

abbrev pV (L : grid17.Coords) : Proc τ := Proc.scVector (cV L) (jV L)

omit [FloatOps F] in
theorem ownBufs_V :
    (ownBufs (thr d L) : sProp 𝕄)
      = iprop((∃ f, (thr d L).loc cc17_scratch0 ↦{fullShare} f) ∗ (∃ f, (thr d L).loc cc17_scratch1 ↦{fullShare} f)
          ∗ (∃ f, (thr d L).loc cc17_scratch2 ↦{fullShare} f) ∗ (∃ f, (thr d L).loc cc17_scratch3 ↦{fullShare} f)
          ∗ bigSep (((((ownRefs (τ := τ) (pV L)).erase ((pV L).devRef cc17_scratch0)).erase ((pV L).devRef cc17_scratch1)).erase
              ((pV L).devRef cc17_scratch2)).erase ((pV L).devRef cc17_scratch3))
              fun b => iprop(∃ f, ((d, b) : Loc nD τ sig) ↦{fullShare} f)) := by
  unfold SparseCore.Cfg.ownBufs
  refine (SparseCore.bigSep_erase' (SparseCore.Cfg.mem_ownRefs_of_owner (p := pV L) (b := (pV L).devRef cc17_scratch0) rfl)).trans ?_
  rw [SparseCore.bigSep_erase' (Finset.mem_erase.mpr ⟨fun e => absurd (Proc.devRef_injective _ e) (show (cc17_scratch1 : Ref sig .scVector) ≠ cc17_scratch0 by decide),
      SparseCore.Cfg.mem_ownRefs_of_owner (p := pV L) (b := (pV L).devRef cc17_scratch1) rfl⟩),
    SparseCore.bigSep_erase' (Finset.mem_erase.mpr ⟨fun e => absurd (Proc.devRef_injective _ e) (show (cc17_scratch2 : Ref sig .scVector) ≠ cc17_scratch1 by decide),
      Finset.mem_erase.mpr ⟨fun e => absurd (Proc.devRef_injective _ e) (show (cc17_scratch2 : Ref sig .scVector) ≠ cc17_scratch0 by decide),
      SparseCore.Cfg.mem_ownRefs_of_owner (p := pV L) (b := (pV L).devRef cc17_scratch2) rfl⟩⟩),
    SparseCore.bigSep_erase' (Finset.mem_erase.mpr ⟨fun e => absurd (Proc.devRef_injective _ e) (show (cc17_scratch3 : Ref sig .scVector) ≠ cc17_scratch2 by decide),
      Finset.mem_erase.mpr ⟨fun e => absurd (Proc.devRef_injective _ e) (show (cc17_scratch3 : Ref sig .scVector) ≠ cc17_scratch1 by decide),
      Finset.mem_erase.mpr ⟨fun e => absurd (Proc.devRef_injective _ e) (show (cc17_scratch3 : Ref sig .scVector) ≠ cc17_scratch0 by decide),
      SparseCore.Cfg.mem_ownRefs_of_owner (p := pV L) (b := (pV L).devRef cc17_scratch3) rfl⟩⟩⟩)]

/-- The rest of the subcore's scoped storage, which the task does not touch. -/
def restR : sProp 𝕄 :=
  iprop((bigSep (((((ownRefs (τ := τ) (pV L)).erase ((pV L).devRef cc17_scratch0)).erase ((pV L).devRef cc17_scratch1)).erase
              ((pV L).devRef cc17_scratch2)).erase ((pV L).devRef cc17_scratch3))
              fun b => iprop(∃ f, ((d, b) : Loc nD τ sig) ↦{fullShare} f))
      ∗ bigSep (((((ownCells (thr d L)).erase (c8 d L)).erase (c9 d L)).erase (c10 d L)).erase (c11 d L)) fun g => semVal g 0)

theorem body_pre (hO : ∀ g, O g none = 0) :
    iprop(levAts (K (F := F)).L (K (F := F)).lev ∗ emp ∗ goRes d L fx ∗ ownBufs (thr d L) ∗ ownSems0 (thr d L) ∗ owes (thr d L) O W)
      ⊢ runPre d L O W fx (restR (F := F) d L) := by
  rw [ownSems0_V, ownBufs_V]
  unfold goRes runPre restR
  iintro ⟨#Hlv, -, ⟨HX, HOut⟩, ⟨H4, H5, H6, H7, Hbufs⟩, ⟨Hs8, Hs9, Hs10, Hs11, Hsems⟩, HO⟩
  ihave Hmw := ((K (F := F)).mayWaits_none (thr := thr d L) hO) $$ Hlv
  isplitr; · iexact Hmw
  isplitl [HO]; · iexact HO
  isplitl [HX]; · iexact HX
  isplitl [HOut]; · iexact HOut
  isplitl [H4]; · iexact H4
  isplitl [H5]; · iexact H5
  isplitl [H6]; · iexact H6
  isplitl [H7]; · iexact H7
  isplitl [Hs8]; · iexact Hs8
  isplitl [Hs9]; · iexact Hs9
  isplitl [Hs10]; · iexact Hs10
  isplitl [Hs11]; · iexact Hs11
  isplitl [Hbufs]; · iexact Hbufs
  iexact Hsems

theorem body_post :
    runPost d L O W fx (restR (F := F) d L)
      ⊢ iprop(tdRes d L fx ∗ ownBufs (thr d L) ∗ ownSems0 (thr d L) ∗ ∃ W', ⌜∀ p ∈ W', p ∈ W ∨ p.2 = none⌝ ∗ owes (thr d L) O W') := by
  rw [ownSems0_V, ownBufs_V]
  unfold tdRes runPost restR
  iintro ⟨HX, HOut, H4, H5, H6, H7, Hs8, Hs9, Hs10, Hs11, HW, Hbufs, Hsems⟩
  isplitl [HX HOut]
  · isplitl [HX]; · iexact HX
    iexact HOut
  isplitl [H4 H5 H6 H7 Hbufs]
  · isplitl [H4]; · iexact H4
    isplitl [H5]; · iexact H5
    isplitl [H6]; · iexact H6
    isplitl [H7]; · iexact H7
    iexact Hbufs
  isplitl [Hs8 Hs9 Hs10 Hs11 Hsems]
  · isplitl [Hs8]; · iexact Hs8
    isplitl [Hs9]; · iexact Hs9
    isplitl [Hs10]; · iexact Hs10
    isplitl [Hs11]; · iexact Hs11
    iexact Hsems
  iexact HW

/-- The task in the launch theorem's shape: from what the call hands the tile and the subcore's scoped storage to
    what the tile hands back and the storage again. -/
theorem tile_body (hF : (K (F := F)).Facts) (hO : ∀ g, O g none = 0) :
    iprop(levAts (K (F := F)).L (K (F := F)).lev ∗ emp ∗ goRes d L fx ∗ scopedBufs (thr d L) ∗ scopedSems0 (thr d L) ∗ owes (thr d L) O W)
      ⊢ wp frame (wpE (defs₀ (F := F)) 𝒱₀ (thr d L) none) Set.univ
          (cc17_sc_group L xtW (Memref.isWhole_whole _) oW (Memref.isWhole_whole _) a4 (Memref.isWhole_whole _) a5 (Memref.isWhole_whole _)
            a6 (Memref.isWhole_whole _) a7 (Memref.isWhole_whole _) cc17_scratch4 cc17_scratch5 cc17_scratch6 cc17_scratch7)
          fun _ => iprop(tdRes d L fx ∗ scopedBufs (thr d L) ∗ scopedSems0 (thr d L)
            ∗ ∃ W', ⌜∀ p ∈ W', p ∈ W ∨ p.2 = none⌝ ∗ owes (thr d L) O W') := by
  rw [(K (F := F)).scopedBufs_V hF d (cV L) (jV L), SparseCore.Cfg.scopedSems0_V (Val := Elt F) d (cV L) (jV L)]
  exact (body_pre d L O W fx hO).trans ((tile_run d L O W fx (restR (F := F) d L)).trans (wp_mono frame _ _ fun _ => body_post d L O W fx))

end Tile

end Cert.Proof.TileK17

end
-- ==== Proof.TileBVal17.lean ====
/-
  What the staging buffers of one vector subcore hold while it copies a piece of 3200 consecutive elements of row 17 of
  the transposed argument into the flat result, read index by index. No program and no ownership here: only the contents.

  A transfer lands the piece in row 0 of an 8 × 3200 staging array (`InRow`: position (0, t) of that row holds element
  (0, pos + t) of the transposed argument, `pos` the piece's first column). A loop of 200 trips copies that row, 16 lanes
  per trip, into the first 3200 elements of a flat staging array of 25600: trip `j` reads the 1 × 16 window at columns
  [16 j, 16 j + 16) of row 0 and writes it, flattened, at elements [16 j, 16 j + 16). After `j` trips the first 16 j
  elements of the flat array are the first 16 j elements of the row (`Lanes`); a trip extends the prefix by 16
  (`lanes_step`: an element below 16 j is outside the window written and keeps its value, an element of the window reads
  the lane written there, which is the row's element at the same column). A second transfer writes the first 3200
  elements of the flat array to the piece of the result at the same `pos`; so every element of that piece of the result
  holds the element of row 17 of the transposed argument at its own position (`out_written`): the composite of the three
  index maps t ↦ (0, pos + t) ↦ (0, t) ↦ t ↦ pos + t is the identity on positions of the row.
-/
import proofs.«206869_g37898791420194_cont_8to1_b_558_20_alg».proof.Proof.TileB17Defs
import proofs.«206869_g37898791420194_cont_8to1_b_558_20_alg».proof.Proof.Spec
import Idealize.ShloMosaic.Lib.WritesUnit
import Idealize.ShloMosaic.Lib.ValueLayout

noncomputable section

namespace Cert.Proof.TileBVal17

open Cert.Proof.TileB17 Cert.Kernel Cert.Kernel.Gen
open Idealize.ShloMosaic Idealize.ShloMosaic.ValueIdx

variable {F : FTy → Type} [FloatOps F]
variable (d : Dev nD) (L : grid17.Coords)
variable (fx : Buf (Elt F) ((Memref.whole main_v0_scv : Memref sig .scVector .hbm S22x1600000 .f32).view.loc (thr d L)))

abbrev rowRect : Rect S8x3200 := Rect.unit (s := S8x3200) ![0, 0] S1x3200.size inb_S8x3200_S1x3200_0_0

/-- row 0 of the staging array is piece n of the argument row -/
def InRow (a : Memref sig .scVector .vmem S8x3200 .f32) (ga : Buf (Elt F) (a.view.loc (thr d L))) (n : ℕ) : Prop :=
  ∀ y : S1x3200.Idx, a.view.read (Elt F) ga (rowRect.emb y) = (inM L n).view.read (Elt F) fx y

theorem inRow_fetch (a : Memref sig .scVector .vmem S8x3200 .f32) (gold : Buf (Elt F) (a.view.loc (thr d L)))
    (w : S1x3200.Idx → Elt F .f32) (n : ℕ) (hw : ∀ y, w y = (inM L n).view.read (Elt F) fx y) :
    InRow d L fx a (a.view.writes (Elt F) gold [⟨rowRect, w⟩]) n :=
  fun y => (View.read_writes_cons_emb a.view gold rowRect w [] y).trans (hw y)

def Lanes (a : Memref sig .scVector .vmem S8x3200 .f32) (b : Memref sig .scVector .vmem S25600 .f32)
    (ga : Buf (Elt F) (a.view.loc (thr d L))) (gb : Buf (Elt F) (b.view.loc (thr d L))) (j : ℕ) : Prop :=
  ∀ (r : ℕ) (hr : r < 3200), r < 16 * j →
    b.view.read (Elt F) gb (ix1 (⟨r, by omega⟩ : Fin 25600)) = a.view.read (Elt F) ga (ix2 (0 : Fin 8) (⟨r, hr⟩ : Fin 3200))

theorem lanes_zero (a : Memref sig .scVector .vmem S8x3200 .f32) (b : Memref sig .scVector .vmem S25600 .f32)
    (ga : Buf (Elt F) (a.view.loc (thr d L))) (gb : Buf (Elt F) (b.view.loc (thr d L))) : Lanes d L a b ga gb 0 := by
  intro r hr h; omega

/-- The 1 × 16 window at column `c` of the staging array, read at lane `t`, is element `(0, c + t)`. -/
theorem idx_window {off : Fin 2 → ℕ} {c : ℕ} (h : off = ![0, c]) (p : ∀ a', off a' + S1x16.size a' ≤ S8x3200.size a')
    (t : Fin 16) (hr : c + t.val < 3200) :
    (Rect.unit (s := S8x3200) off S1x16.size p).toLoadRect.idx (ix2 (0 : Fin 1) t) = ix2 (0 : Fin 8) (⟨c + t.val, hr⟩ : Fin 3200) := by
  subst h
  funext a'; apply Fin.ext
  rw [LoadRect.idx_apply]
  match a' with
  | ⟨0, _⟩ => show 0 + 1 * 0 = 0; omega
  | ⟨1, _⟩ => show c + 1 * t.val = c + t.val; omega

/-- One trip of a lane-copy loop, the offsets given by their closed forms. -/
theorem lanes_step_core (a : Memref sig .scVector .vmem S8x3200 .f32) (b : Memref sig .scVector .vmem S25600 .f32)
    (ga : Buf (Elt F) (a.view.loc (thr d L))) (gb : Buf (Elt F) (b.view.loc (thr d L)))
    (t : ℕ) {off3 : Fin 2 → ℕ} {off4 : Fin 1 → ℕ} (h3 : off3 = ![0, 16 * t]) (h4 : off4 = ![16 * t])
    (p3 : ∀ a', off3 a' + S1x16.size a' ≤ S8x3200.size a') (p4 : ∀ a', off4 a' + S16.size a' ≤ S25600.size a')
    (h : Lanes d L a b ga gb t) :
    Lanes d L a b ga (b.view.writes (Elt F) gb [⟨Rect.unit (s := S25600) off4 S16.size p4,
      shapeCast S16 (a.view.readAt (Elt F) (Rect.unit (s := S8x3200) off3 S1x16.size p3).toLoadRect ga) shapeCasts_S1x16_S16⟩]) (t + 1) := by
  intro r hr hlt
  by_cases hlo : r < 16 * t
  · refine (View.read_writes_cons_unit_of_not_mem b.view gb p4 _ [] _ h4 (0 : Fin 1) (Or.inl ?_)).trans (h r hr hlo)
    show r < 16 * t
    exact hlo
  · have hx : r - 16 * t < 16 := by omega
    refine (View.read_writes_cons_unit_of_mem b.view gb p4 _ [] _ (ix1 (⟨r - 16 * t, hx⟩ : Fin 16)) h4 ?_).trans ?_
    · intro a'
      match a' with
      | ⟨0, _⟩ => show r = 16 * t + (r - 16 * t); omega
    · rw [shapeCast_1a_a_apply, View.readAt_apply, idx_window h3 p3 ⟨r - 16 * t, hx⟩ (by show 16 * t + (r - 16 * t) < 3200; omega)]
      congr 2
      apply Fin.ext
      show 16 * t + (r - 16 * t) = r
      omega

theorem lanes_step (a : Memref sig .scVector .vmem S8x3200 .f32) (b : Memref sig .scVector .vmem S25600 .f32)
    (ga : Buf (Elt F) (a.view.loc (thr d L))) (gb : Buf (Elt F) (b.view.loc (thr d L)))
    (j : Fin k17_t2_loop.trips) (p3 : ∀ a', (k17_off3 j) a' + S1x16.size a' ≤ S8x3200.size a')
    (p4 : ∀ a', (k17_off4 j) a' + S16.size a' ≤ S25600.size a') (h : Lanes d L a b ga gb j.val) :
    Lanes d L a b ga (b.view.writes (Elt F) gb [⟨Rect.unit (s := S25600) (k17_off4 j) S16.size p4,
      k17_pay1 (a.view.readAt (Elt F) (Rect.unit (s := S8x3200) (k17_off3 j) S1x16.size p3).toLoadRect ga)⟩]) (j.val + 1) :=
  lanes_step_core d L a b ga gb j.val (k17_off3_eq j) (k17_off4_eq j) p3 p4 h

theorem lanes_step' (a : Memref sig .scVector .vmem S8x3200 .f32) (b : Memref sig .scVector .vmem S25600 .f32)
    (ga : Buf (Elt F) (a.view.loc (thr d L))) (gb : Buf (Elt F) (b.view.loc (thr d L)))
    (j : Fin k17_t3_loop.trips) (p3 : ∀ a', (k17_off8 j) a' + S1x16.size a' ≤ S8x3200.size a')
    (p4 : ∀ a', (k17_off9 j) a' + S16.size a' ≤ S25600.size a') (h : Lanes d L a b ga gb j.val) :
    Lanes d L a b ga (b.view.writes (Elt F) gb [⟨Rect.unit (s := S25600) (k17_off9 j) S16.size p4,
      k17_pay2 (a.view.readAt (Elt F) (Rect.unit (s := S8x3200) (k17_off8 j) S1x16.size p3).toLoadRect ga)⟩]) (j.val + 1) :=
  lanes_step_core d L a b ga gb j.val (k17_off8_eq j) (k17_off9_eq j) p3 p4 h

/-- Position `y` of the write-out window of the flat staging array is its element `y 0`. -/
theorem stg_emb (y : S3200.Idx) (hy : (y 0).val < 25600) :
    (Rect.unit (s := S25600) ![0] S3200.size inb_S25600_S3200_0).emb y = ix1 (⟨(y 0).val, hy⟩ : Fin 25600) := by
  funext a'; apply Fin.ext
  match a' with
  | ⟨0, _⟩ => show 0 + 1 * (y 0).val = (y 0).val; omega

/-- Position `(0, t)` of row 0 of the staging array is its element `(0, t)`. -/
theorem row_emb (t : Fin 3200) : rowRect.emb (ix2 (0 : Fin 1) t) = ix2 (0 : Fin 8) t := by
  funext a'; apply Fin.ext
  match a' with
  | ⟨0, _⟩ => show 0 + 1 * 0 = 0; omega
  | ⟨1, _⟩ => show 0 + 1 * t.val = t.val; omega

/-- Position `(0, t)` of piece `n` of the argument row is element `(0, pos + t)` of the transposed argument;
    position `y` of piece `n` of the result is element `pos + y 0` of the result. -/
theorem in_emb (n : ℕ) (t : Fin 3200) (h : pos L n + t.val < 1600000) :
    (inM L n).view.emb (ix2 (0 : Fin 1) t) = ix2 (17 : Fin 22) (⟨pos L n + t.val, h⟩ : Fin 1600000) := by
  funext a'; apply Fin.ext
  match a' with
  | ⟨0, _⟩ => show 17 + 1 * 0 = 17; omega
  | ⟨1, _⟩ => show pos L n + 1 * t.val = pos L n + t.val; omega

theorem out_emb (n : ℕ) (y : S3200.Idx) (h : pos L n + (y 0).val < 1600000) :
    (outM L n).view.emb y = ix1 (⟨pos L n + (y 0).val, h⟩ : Fin 1600000) := by
  funext a'; apply Fin.ext
  match a' with
  | ⟨0, _⟩ => show pos L n + 1 * (y 0).val = pos L n + (y 0).val; omega

/-- Both lane-copy loops run 200 trips: 200 · 16 = 3200, the whole row. -/
theorem trips2 : k17_t2_loop.trips = 200 := by decide
theorem trips3 : k17_t3_loop.trips = 200 := by decide

/-- After all its trips a lane-copy loop has copied the whole row. -/
theorem lanes_all (a : Memref sig .scVector .vmem S8x3200 .f32) (b : Memref sig .scVector .vmem S25600 .f32)
    (ga : Buf (Elt F) (a.view.loc (thr d L))) (gb : Buf (Elt F) (b.view.loc (thr d L)))
    (h : Lanes d L a b ga gb k17_t2_loop.trips) : Lanes d L a b ga gb 200 := trips2 ▸ h
theorem lanes_all' (a : Memref sig .scVector .vmem S8x3200 .f32) (b : Memref sig .scVector .vmem S25600 .f32)
    (ga : Buf (Elt F) (a.view.loc (thr d L))) (gb : Buf (Elt F) (b.view.loc (thr d L)))
    (h : Lanes d L a b ga gb k17_t3_loop.trips) : Lanes d L a b ga gb 200 := trips3 ▸ h

/-- The write-out of a piece: the first 3200 elements of the flat staging array, which the 200 lane copies filled from
    row 0 of the staging array, which the fetch filled from piece `n` of row 17 of the transposed argument, land at
    piece `n` of the result, at the same positions of the row. -/
theorem out_written (a : Memref sig .scVector .vmem S8x3200 .f32) (b : Memref sig .scVector .vmem S25600 .f32) (n : ℕ)
    (ga : Buf (Elt F) (a.view.loc (thr d L))) (gb : Buf (Elt F) (b.view.loc (thr d L)))
    (f0 : Buf (Elt F) ((outM L n).view.loc (thr d L))) (w : S3200.Idx → Elt F .f32)
    (hw : ∀ y, w y = (stg b).view.read (Elt F) gb y) (hl : Lanes d L a b ga gb 200) (hr : InRow d L fx a ga n) (hv : valid L n) :
    ∀ i ∈ (outM L n).view.set, ((outM L n).view.writes (Elt F) f0 [⟨Rect.whole _, w⟩]) i = Cert.Spec.row 17 fx i := by
  intro i hi
  obtain ⟨y, -, rfl⟩ := Finset.mem_map.mp hi
  have hy : (y 0).val < 3200 := (y 0).isLt
  have hp : pos L n + (y 0).val < 1600000 := by unfold pos; omega
  have e1 : (outM L n).view.writes (Elt F) f0 [⟨Rect.whole _, w⟩] ((outM L n).view.emb y) = w y := by
    have h := View.read_writes_cons_emb (outM L n).view f0 (Rect.whole _) w [] y
    rw [Rect.emb_whole_apply] at h
    exact (cast_eq _ _).symm.trans ((View.read_apply _ _).symm.trans h)
  have e2 : (stg b).view.read (Elt F) gb y = b.view.read (Elt F) gb (ix1 (⟨(y 0).val, by omega⟩ : Fin 25600)) :=
    congrArg (b.view.read (Elt F) gb) (stg_emb y (by omega))
  have e3 : a.view.read (Elt F) ga (ix2 (0 : Fin 8) (⟨(y 0).val, hy⟩ : Fin 3200))
      = (inM L n).view.read (Elt F) fx (ix2 (0 : Fin 1) (⟨(y 0).val, hy⟩ : Fin 3200)) :=
    (congrArg (a.view.read (Elt F) ga) (row_emb ⟨(y 0).val, hy⟩).symm).trans (hr _)
  have e4 : (inM L n).view.read (Elt F) fx (ix2 (0 : Fin 1) (⟨(y 0).val, hy⟩ : Fin 3200))
      = fx (ix2 (17 : Fin 22) (⟨pos L n + (y 0).val, hp⟩ : Fin 1600000)) :=
    ((View.read_apply _ _).trans (cast_eq _ _)).trans (congrArg fx (in_emb L n ⟨(y 0).val, hy⟩ hp))
  have e5 : Cert.Spec.row 17 fx ((outM L n).view.emb y) = fx (ix2 (17 : Fin 22) (⟨pos L n + (y 0).val, hp⟩ : Fin 1600000)) :=
    (congrArg (Cert.Spec.row 17 fx) (out_emb L n y hp)).trans (Cert.Spec.row_apply 17 fx _)
  exact e1.trans ((hw y).trans (e2.trans ((hl _ hy (by omega)).trans (e3.trans (e4.trans e5.symm)))))

end Cert.Proof.TileBVal17

end
-- ==== Proof.TileB17.lean ====
/-
  One vector subcore's task of copy kernel 17 (counting from 0), run symbolically: the two fetch slots and two write-out slots
  between trips of the main loop (what each transfer in flight will hand back, and what the staging buffers hold), the
  invariant of the main loop and of the two lane-copy loops, and the task's run — from the tile's pieces of row 17 of
  the transposed argument and of the result to the same pieces with the result holding the row's elements.
-/
import proofs.«206869_g37898791420194_cont_8to1_b_558_20_alg».proof.Proof.TileB17Defs
import proofs.«206869_g37898791420194_cont_8to1_b_558_20_alg».proof.Proof.TileBVal17
noncomputable section

namespace Cert.Proof.TileB17

open Cert.Kernel Cert.Kernel.Gen Cert.Proof.TileBVal17
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 22) (Elt F) ℕ UU ℕ
local notation "xtW" => (Memref.whole Cert.Kernel.main_v0_scv : Memref Cert.Kernel.sig Kind.scVector Space.hbm Cert.Kernel.S22x1600000 EltTy.f32)
local notation "oW" => (Memref.whole Cert.Kernel.main_v18_scv : Memref Cert.Kernel.sig Kind.scVector Space.hbm Cert.Kernel.S1600000 EltTy.f32)
local notation "a4" => (Memref.whole Cert.Kernel.cc17_scratch0 : Memref Cert.Kernel.sig Kind.scVector Space.vmem Cert.Kernel.S8x3200 EltTy.f32)
local notation "a5" => (Memref.whole Cert.Kernel.cc17_scratch1 : Memref Cert.Kernel.sig Kind.scVector Space.vmem Cert.Kernel.S8x3200 EltTy.f32)
local notation "a6" => (Memref.whole Cert.Kernel.cc17_scratch2 : Memref Cert.Kernel.sig Kind.scVector Space.vmem Cert.Kernel.S25600 EltTy.f32)
local notation "a7" => (Memref.whole Cert.Kernel.cc17_scratch3 : Memref Cert.Kernel.sig Kind.scVector Space.vmem Cert.Kernel.S25600 EltTy.f32)

variable [FloatOps F]

section Tile

variable (d : Dev nD) (L : grid17.Coords)
variable (O : CellTallies nD τ sig (HIx 22)) (W : Waits sig (HIx 22))
variable (fx : Buf (Elt F) ((xtW).view.loc (thr d L)))

/-- Piece `n` of the result at its final contents. -/
abbrev oqPiece (n : ℕ) : sProp 𝕄 := (outM L n).view.loc (thr d L) ↦[(outM L n).view.set]{fullShare} (Cert.Spec.row 17 fx)
theorem oQ_pos {n : ℕ} (v : valid L n) : oQ d L fx n = oqPiece d L fx n := if_pos v
theorem oQ_neg {n : ℕ} (v : ¬ valid L n) : oQ d L fx n = iprop(emp) := if_neg v

/-- A fetch slot, remembering that the staging row it will hand back holds the piece. -/
def inSlotV (a : Memref sig .scVector .vmem S8x3200 .f32) (sm : DmaSem sig) (n : ℕ) : sProp 𝕄 :=
  if valid L n then
    iprop(∃ g, ⌜InRow d L fx a g n⌝ ∗ Transfers.Flight countersEmb (thr d L) (SemLoc.dma sm) (default : HIx 22) NN
      iprop((a.view.loc (thr d L) ↦{fullShare} g) ∗ xtPiece d L fx n))
  else iprop((∃ g, a.view.loc (thr d L) ↦{fullShare} g) ∗ semVal (thr d L, SemLoc.dma sm) 0)

/-- A write-out slot: the piece in flight will come back holding the row's elements. -/
def outSlotV (a : Memref sig .scVector .vmem S25600 .f32) (sm : DmaSem sig) (m : ℕ) : sProp 𝕄 :=
  if 2 ≤ m ∧ valid L (m - 2) then
    iprop(∃ g, Transfers.Flight countersEmb (thr d L) (SemLoc.dma sm) (default : HIx 22) NN
        iprop(oqPiece d L fx (m - 2) ∗ ((stg a).view.loc (thr d L) ↦[(stg a).view.set]{fullShare} g))
      ∗ (a.view.loc (thr d L) ↦[Finset.univ \ (stg a).view.set]{fullShare} g))
  else iprop((∃ g, a.view.loc (thr d L) ↦{fullShare} g) ∗ semVal (thr d L, SemLoc.dma sm) 0)

theorem inSlotV_pos {a : Memref sig .scVector .vmem S8x3200 .f32} {sm : DmaSem sig} {n : ℕ} (v : valid L n) :
    inSlotV d L fx a sm n = iprop(∃ g, ⌜InRow d L fx a g n⌝ ∗ Transfers.Flight countersEmb (thr d L) (SemLoc.dma sm) (default : HIx 22) NN
      iprop((a.view.loc (thr d L) ↦{fullShare} g) ∗ xtPiece d L fx n)) := by unfold inSlotV; rw [if_pos v]
theorem inSlotV_neg {a : Memref sig .scVector .vmem S8x3200 .f32} {sm : DmaSem sig} {n : ℕ} (v : ¬ valid L n) :
    inSlotV d L fx a sm n = iprop((∃ g, a.view.loc (thr d L) ↦{fullShare} g) ∗ semVal (thr d L, SemLoc.dma sm) 0) := by
  unfold inSlotV; rw [if_neg v]
theorem outSlotV_pos {a : Memref sig .scVector .vmem S25600 .f32} {sm : DmaSem sig} {m : ℕ} (h : 2 ≤ m ∧ valid L (m - 2)) :
    outSlotV d L fx a sm m = iprop(∃ g, Transfers.Flight countersEmb (thr d L) (SemLoc.dma sm) (default : HIx 22) NN
        iprop(oqPiece d L fx (m - 2) ∗ ((stg a).view.loc (thr d L) ↦[(stg a).view.set]{fullShare} g))
      ∗ (a.view.loc (thr d L) ↦[Finset.univ \ (stg a).view.set]{fullShare} g)) := by unfold outSlotV; rw [if_pos h]
theorem outSlotV_neg {a : Memref sig .scVector .vmem S25600 .f32} {sm : DmaSem sig} {m : ℕ} (h : ¬ (2 ≤ m ∧ valid L (m - 2))) :
    outSlotV d L fx a sm m = iprop((∃ g, a.view.loc (thr d L) ↦{fullShare} g) ∗ semVal (thr d L, SemLoc.dma sm) 0) := by
  unfold outSlotV; rw [if_neg h]

/-- A fetch just issued: the staging row will hold what the transfer reads, which is the piece. -/
theorem fl_inV {off : Fin 2 → ℕ} {n : ℕ} (h : off = ![17, pos L n]) (p : ∀ a, off a + S1x3200.size a ≤ S22x1600000.size a) (v : valid L n)
    (a : Memref sig .scVector .vmem S8x3200 .f32) (sm : DmaSem sig) :
    (iprop(∃ (gold : Buf (Elt F) (a.view.loc (thr d L))) (w : S1x3200.Idx → Elt F .f32),
        ⌜∀ y, w y = ((xtW).slice (Rect.unit (s := S22x1600000) off S1x3200.size p) (fun _ => rfl)).view.read (Elt F) fx y⌝
        ∗ Transfers.Flight countersEmb (thr d L) (SemLoc.dma sm) (default : HIx 22) NN
          iprop((a.view.loc (thr d L) ↦{fullShare} a.view.writes (Elt F) gold [⟨rowRect, w⟩])
            ∗ (((xtW).slice (Rect.unit (s := S22x1600000) off S1x3200.size p) (fun _ => rfl)).view.loc (thr d L)
                ↦[((xtW).slice (Rect.unit (s := S22x1600000) off S1x3200.size p) (fun _ => rfl)).view.set]{fullShare} fx))) : sProp 𝕄)
      ⊢ inSlotV d L fx a sm n := by
  subst h
  rw [inSlotV_pos d L fx v]
  iintro ⟨%gold, %w, %hw, H⟩
  iexists _
  isplitr
  · ipureintro; exact inRow_fetch d L fx a gold w n hw
  · iexact H

set_option maxHeartbeats 4000000 in
/-- A write-out just issued from a flat staging buffer whose first 3200 elements are the staging row, itself piece
    `n` of the argument row: the piece of the result will hold the row's elements. -/
theorem fl_outV {off : Fin 1 → ℕ} {n : ℕ} (h : off = ![pos L n]) (p : ∀ a, off a + S3200.size a ≤ S1600000.size a) (v : valid L n)
    (ar : Memref sig .scVector .vmem S8x3200 .f32) (a : Memref sig .scVector .vmem S25600 .f32) (sm : DmaSem sig)
    (f0 : Buf (Elt F) ((oW).view.loc (thr d L))) (ga : Buf (Elt F) (ar.view.loc (thr d L))) (gb : Buf (Elt F) (a.view.loc (thr d L)))
    (hl : Lanes d L ar a ga gb 200) (hr : InRow d L fx ar ga n) :
    (iprop(∃ (w : S3200.Idx → Elt F .f32),
        ⌜∀ y, w y = (stg a).view.read (Elt F) gb y⌝
        ∗ Transfers.Flight countersEmb (thr d L) (SemLoc.dma sm) (default : HIx 22) NN
          iprop((((oW).slice (Rect.unit (s := S1600000) off S3200.size p) (fun _ => rfl)).view.loc (thr d L)
                ↦[((oW).slice (Rect.unit (s := S1600000) off S3200.size p) (fun _ => rfl)).view.set]{fullShare}
                  (((oW).slice (Rect.unit (s := S1600000) off S3200.size p) (fun _ => rfl)).view.writes (Elt F) f0 [⟨Rect.whole _, w⟩]))
            ∗ ((stg a).view.loc (thr d L) ↦[(stg a).view.set]{fullShare} gb))
        ∗ (a.view.loc (thr d L) ↦[Finset.univ \ (stg a).view.set]{fullShare} gb)) : sProp 𝕄)
      ⊢ outSlotV d L fx a sm (n + 2) := by
  subst h
  rw [outSlotV_pos d L fx (m := n + 2) ⟨by omega, by simpa using v⟩]
  iintro ⟨%w, %hw, H, R⟩
  have hD : (iprop(((outM L n).view.loc (thr d L) ↦[(outM L n).view.set]{fullShare} ((outM L n).view.writes (Elt F) f0 [⟨Rect.whole _, w⟩]))
          ∗ ((stg a).view.loc (thr d L) ↦[(stg a).view.set]{fullShare} gb)) : sProp 𝕄)
      ⊢ iprop(oqPiece d L fx (n + 2 - 2) ∗ ((stg a).view.loc (thr d L) ↦[(stg a).view.set]{fullShare} gb)) := by
    rw [Nat.add_sub_cancel]
    have e : (((outM L n).view.loc (thr d L) ↦[(outM L n).view.set]{fullShare} ((outM L n).view.writes (Elt F) f0 [⟨Rect.whole _, w⟩])) : sProp 𝕄)
        = oqPiece d L fx n := pointsTo_congr (out_written d L fx ar a n ga gb f0 w hw hl hr v)
    iintro ⟨H1, H2⟩
    isplitl [H1]
    · iapply (Entails.of_eq e); iexact H1
    · iexact H2
  iexists gb
  isplitl [H]
  · iapply (Transfers.Flight_mono countersEmb (thr d L) hD); iexact H
  · iexact R

/-- The result pieces outside the slots before trip `t`: those already written hold the row, the others some contents. -/
def oMix (t n : ℕ) : sProp 𝕄 := if n + 2 < 2 * t then oQ d L fx n else oP (F := F) d L n
theorem oMix_lt {t n : ℕ} (h : n + 2 < 2 * t) : oMix d L fx t n = oQ d L fx n := if_pos h
theorem oMix_ge {t n : ℕ} (h : ¬ n + 2 < 2 * t) : oMix d L fx t n = oP (F := F) d L n := if_neg h
theorem oMix_core (k : ℕ) : bigSep (oCore k) (oMix d L fx k) = bigSep (oCore k) (oMix d L fx (k + 1)) :=
  bigSep_congr fun n hn => by
    have hn' : n + 2 ≠ 2 * k ∧ n + 2 ≠ 2 * k + 1 ∧ n ≠ 2 * k ∧ n ≠ 2 * k + 1 := by
      simp only [oCore, Finset.mem_filter, Finset.mem_range] at hn; exact hn.2
    by_cases h : n + 2 < 2 * k
    · rw [oMix_lt d L fx h, oMix_lt d L fx (by omega)]
    · rw [oMix_ge d L fx h, oMix_ge d L fx (by omega)]
theorem oMix_zero : bigSep (oSet 0) (oMix d L fx 0) = bigSep (Finset.range 18) (oP (F := F) d L) := by
  rw [oSet_zero]; exact bigSep_congr fun n _ => oMix_ge d L fx (by omega)
theorem oMix_end : bigSep (oSet 8) (oMix d L fx 8) = bigSep (oSet 8) (oQ d L fx) :=
  bigSep_congr fun n hn => by
    have hn' : n < 18 ∧ n + 2 ≠ 16 ∧ n + 2 ≠ 17 := by simpa only [oSet, Finset.mem_filter, Finset.mem_range] using hn
    by_cases h : n + 2 < 2 * 8
    · exact oMix_lt d L fx h
    · rw [oMix_ge d L fx h, oP_neg (F := F) d L (by unfold valid; omega), oQ_neg d L fx (by unfold valid; omega)]

/-- The lane-copy loops: before trip `j` the first 16·j elements of the flat staging buffer are the staging row's. -/
def laneV0 (g4 : Buf (Elt F) ((a4).view.loc (thr d L))) (j : ℕ) (_ : PUnit) : sProp 𝕄 :=
  iprop(((a4).view.loc (thr d L) ↦{fullShare} g4) ∗ (∃ g, ((a6).view.loc (thr d L) ↦{fullShare} g) ∗ ⌜Lanes d L a4 a6 g4 g j⌝))
def laneV1 (g5 : Buf (Elt F) ((a5).view.loc (thr d L))) (j : ℕ) (_ : PUnit) : sProp 𝕄 :=
  iprop(((a5).view.loc (thr d L) ↦{fullShare} g5) ∗ (∃ g, ((a7).view.loc (thr d L) ↦{fullShare} g) ∗ ⌜Lanes d L a5 a7 g5 g j⌝))

def invV (t : ℕ) (_ : PUnit) : sProp 𝕄 :=
  iprop(Transfers.MayWaits (thr d L) (none : HIx 22) O
    ∗ (∃ W', ⌜∀ p ∈ W', p ∈ W ∨ p.2 = none⌝ ∗ owes (thr d L) O W')
    ∗ bigSep (xSet t) (xP d L fx) ∗ bigSep (oSet t) (oMix d L fx t)
    ∗ inSlotV d L fx a4 cc17_scratch4.sem (2 * t) ∗ outSlotV d L fx a6 cc17_scratch6.sem (2 * t)
    ∗ inSlotV d L fx a5 cc17_scratch5.sem (2 * t + 1) ∗ outSlotV d L fx a7 cc17_scratch7.sem (2 * t + 1))

/-- After the last trip nothing of the argument row is in a slot: the tile holds all its pieces. -/
theorem xRange_end : bigSep (xSet 8) (xP d L fx) ⊢ bigSep (Finset.range 18) (xP d L fx) := by
  rw [two_out (s := Finset.range 18) (a := 16) (b := 17) (by decide) (by decide) (by decide),
    show ((Finset.range 18).erase 16).erase 17 = xSet 8 by decide]
  iintro H
  isplitr; · iapply (Entails.of_eq (xP_neg d L fx (n := 16) (by unfold valid; omega)).symm); iempintro
  isplitr; · iapply (Entails.of_eq (xP_neg d L fx (n := 17) (by unfold valid; omega)).symm); iempintro
  iexact H
omit [FloatOps F] in
theorem oRange_end (Φ : ℕ → sProp 𝕄) : bigSep (Finset.range 18) Φ = iprop(Φ 14 ∗ Φ 15 ∗ bigSep (oSet 8) Φ) := by
  rw [two_out (s := Finset.range 18) (a := 14) (b := 15) (by decide) (by decide) (by decide),
    show ((Finset.range 18).erase 14).erase 15 = oSet 8 by decide]

/-- What the run starts from and ends with, beside an untouched rest `R`. -/
def runPre (R : sProp 𝕄) : sProp 𝕄 :=
    iprop(Transfers.MayWaits (thr d L) (none : HIx 22) O ∗ owes (thr d L) O W
        ∗ bigSep (Finset.range 18) (xP d L fx) ∗ bigSep (Finset.range 18) (oP (F := F) d L)
        ∗ (∃ g, (a4).view.loc (thr d L) ↦{fullShare} g) ∗ (∃ g, (a5).view.loc (thr d L) ↦{fullShare} g)
        ∗ (∃ g, (a6).view.loc (thr d L) ↦{fullShare} g) ∗ (∃ g, (a7).view.loc (thr d L) ↦{fullShare} g)
        ∗ semVal (thr d L, SemLoc.dma cc17_scratch4.sem) 0 ∗ semVal (thr d L, SemLoc.dma cc17_scratch5.sem) 0
        ∗ semVal (thr d L, SemLoc.dma cc17_scratch6.sem) 0 ∗ semVal (thr d L, SemLoc.dma cc17_scratch7.sem) 0 ∗ R)
def runPost (R : sProp 𝕄) : sProp 𝕄 :=
    iprop(bigSep (Finset.range 18) (xP d L fx) ∗ bigSep (Finset.range 18) (oQ d L fx)
            ∗ (∃ g, (a4).view.loc (thr d L) ↦{fullShare} g) ∗ (∃ g, (a5).view.loc (thr d L) ↦{fullShare} g)
            ∗ (∃ g, (a6).view.loc (thr d L) ↦{fullShare} g) ∗ (∃ g, (a7).view.loc (thr d L) ↦{fullShare} g)
            ∗ semVal (thr d L, SemLoc.dma cc17_scratch4.sem) 0 ∗ semVal (thr d L, SemLoc.dma cc17_scratch5.sem) 0
            ∗ semVal (thr d L, SemLoc.dma cc17_scratch6.sem) 0 ∗ semVal (thr d L, SemLoc.dma cc17_scratch7.sem) 0
            ∗ (∃ W', ⌜∀ p ∈ W', p ∈ W ∨ p.2 = none⌝ ∗ owes (thr d L) O W') ∗ R)

set_option maxHeartbeats 16000000 in
/-- The task's run: from its pieces of the argument row and of the result, the four staging buffers and the four
    semaphores at zero, to the same with every piece of the result holding the row's elements. -/
theorem tile_run (R : sProp 𝕄) :
    runPre d L O W fx R
      ⊢ wp frame (wpE (defs₀ (F := F)) 𝒱₀ (thr d L) none) Set.univ
          (cc17_sc_group L xtW (Memref.isWhole_whole _) oW (Memref.isWhole_whole _) a4 (Memref.isWhole_whole _) a5 (Memref.isWhole_whole _)
            a6 (Memref.isWhole_whole _) a7 (Memref.isWhole_whole _) cc17_scratch4 cc17_scratch5 cc17_scratch6 cc17_scratch7)
          fun _ => runPost d L O W fx R := by
  unfold runPre runPost
  have v0 : valid L 0 := Or.inl (by omega)
  have v1 : valid L 1 := Or.inl (by omega)
  have k17_h7 : k17_cond7 L = 1#1 := cond7_iff L
  iintro ⟨#Hmw, HO, HX, HOut, ⟨%g4, H4⟩, ⟨%g5, H5⟩, ⟨%g6, H6⟩, ⟨%g7, H7⟩, Hs8, Hs9, Hs10, Hs11, HR⟩
  ihave HX := (Entails.of_eq (xRange_split d L fx v0 v1)) $$ HX
  icases HX with ⟨X0, X1, HX⟩
  ihave X0 := (Entails.of_eq (in_congr d L (off_in0 L v0).symm (in_inb L _) (k17_off1_inb L 0) fx)) $$ X0
  ihave X1 := (Entails.of_eq (in_congr d L (off_in1 L v1).symm (in_inb L _) (k17_off1_inb L 1) fx)) $$ X1
  sl_unfold [cc17_sc_group]
  sl_exec
  ihave S8 := (fl_inV d L fx (off_in0 L v0) (k17_off1_inb L 0) v0 a4 cc17_scratch4.sem) $$ [Hs8]
  · iexists _, _
    isplitr
    rotate_left
    · iexact Hs8
    ipureintro; intro y; rfl
  ihave S9 := (fl_inV d L fx (off_in1 L v1) (k17_off1_inb L 1) v1 a5 cc17_scratch5.sem) $$ [Hs9]
  · iexists _, _
    isplitr
    rotate_left
    · iexact Hs9
    ipureintro; intro y; rfl
  sl_for (invV d L O W fx) $$ [HO HX HOut S8 S9 H6 H7 Hs10 Hs11]
  case region =>
    intro (k : Fin k17_t1_loop.trips) acc
    have hk : k.val < 8 := Nat.lt_of_lt_of_eq k.isLt trips1
    unfold invV
    iintro ⟨#Hmw, ⟨%W', %hW', HO⟩, HX, HOut, S8, S10, S9, S11⟩
    by_cases hk1 : 1 ≤ k.val
    · by_cases v3 : valid L (2 * k.val + 3)
      · -- the generic trip: both drains, both pieces worked, both next fetches issued
        have hk6 : k.val ≤ 6 := by unfold valid at v3; omega
        have k17_h1 : k17_cond1 k = 1#1 := (cond1_iff k).mpr (by omega)
        have k17_h2 : k17_cond2 L k = 1#1 := cond2_iff L k
        have k17_h3 : k17_cond3 L k = 1#1 := (cond3_iff L k).mpr (by omega)
        have k17_h4 : k17_cond4 k = 1#1 := (cond4_iff k).mpr (by omega)
        have k17_h5 : k17_cond5 L k = 1#1 := (cond5_iff L k).mpr (by first | (unfold valid big at *; omega) | (unfold big at *; omega) | omega)
        have k17_h6 : k17_cond6 L k = 1#1 := (cond6_iff L k).mpr (by first | (unfold valid big at *; omega) | (unfold big at *; omega) | omega)
        have v0 : valid L (2 * k.val) := by unfold valid big at *; omega
        have v1 : valid L (2 * k.val + 1) := by unfold valid big at *; omega
        have v2 : valid L (2 * k.val + 2) := by unfold valid big at *; omega
        have v3' : valid L (2 * k.val + 3) := by unfold valid big at *; omega
        have hm0 : 2 ≤ 2 * k.val ∧ valid L (2 * k.val - 2) := ⟨by omega, by unfold valid big at *; omega⟩
        have hm1 : 2 ≤ 2 * k.val + 1 ∧ valid L (2 * k.val + 1 - 2) := ⟨by omega, by unfold valid big at *; omega⟩
        ihave S8 := (Entails.of_eq (inSlotV_pos d L fx v0)) $$ S8
        icases S8 with ⟨%g4, %hin4, F8⟩
        ihave S9 := (Entails.of_eq (inSlotV_pos d L fx v1)) $$ S9
        icases S9 with ⟨%g5, %hin5, F9⟩
        ihave S10 := (Entails.of_eq (outSlotV_pos d L fx hm0)) $$ S10
        icases S10 with ⟨%g6, F10, R6⟩
        ihave S11 := (Entails.of_eq (outSlotV_pos d L fx hm1)) $$ S11
        icases S11 with ⟨%g7, F11, R7⟩
        ihave HX := (Entails.of_eq (xSet_out (xP d L fx) k.val hk)) $$ HX
        icases HX with ⟨X2, X3, HX⟩
        ihave X2 := (Entails.of_eq (xP_pos d L fx v2)) $$ X2
        ihave X2 := (Entails.of_eq (in_congr d L (off_6 L k v2).symm (in_inb L _) (k17_off6_inb L k k17_h3) fx)) $$ X2
        ihave X3 := (Entails.of_eq (xP_pos d L fx v3')) $$ X3
        ihave X3 := (Entails.of_eq (in_congr d L (off_11 L k v3').symm (in_inb L _) (k17_off11_inb L k k17_h6) fx)) $$ X3
        ihave HOut := (Entails.of_eq (oSet_out (oMix d L fx k.val) k.val hk)) $$ HOut
        icases HOut with ⟨Y0, Y1, HOut⟩
        ihave Y0 := (Entails.of_eq ((oMix_ge d L fx (t := k.val) (n := 2 * k.val) (by omega)).trans (oP_pos (F := F) d L v0))) $$ Y0
        icases Y0 with ⟨%f0, Y0⟩
        ihave Y0 := (Entails.of_eq (out_congr d L (off_5 L k v0).symm (out_inb L _) (k17_off5_inb L k k17_h2) f0)) $$ Y0
        ihave Y1 := (Entails.of_eq ((oMix_ge d L fx (t := k.val) (n := 2 * k.val + 1) (by omega)).trans (oP_pos (F := F) d L v1))) $$ Y1
        icases Y1 with ⟨%f1, Y1⟩
        ihave Y1 := (Entails.of_eq (out_congr d L (off_10 L k v1).symm (out_inb L _) (k17_off10_inb L k k17_h5) f1)) $$ Y1
        sl_exec
        sl_for (laneV0 d L g4) $$ [F8_dst R6]
        case region =>
          intro (j : Fin k17_t2_loop.trips) _
          unfold laneV0
          iintro ⟨HA, %g, HB, %hl⟩
          sl_exec
          sl_step
          isplitl [HA]; · iexact HA
          iexists _; isplitl [HB]; · iexact HB
          ipureintro; exact lanes_step d L a4 a6 g4 g j _ _ hl
        · unfold laneV0
          isplitl [F8_dst]; · iexact F8_dst
          iexists _; isplitl [R6]; · iexact R6
          ipureintro; exact lanes_zero d L a4 a6 g4 _
        iintro %_ HI
        unfold laneV0
        icases HI with ⟨H4, %g6', H6, %hl6⟩
        have hl6 : Lanes d L a4 a6 g4 g6' 200 := Eq.mp (congrArg (Lanes d L a4 a6 g4 g6') trips2) hl6
        sl_exec
        sl_for (laneV1 d L g5) $$ [F9_dst R7]
        case region =>
          intro (j : Fin k17_t3_loop.trips) _
          unfold laneV1
          iintro ⟨HA, %g, HB, %hl⟩
          sl_exec
          sl_step
          isplitl [HA]; · iexact HA
          iexists _; isplitl [HB]; · iexact HB
          ipureintro; exact lanes_step' d L a5 a7 g5 g j _ _ hl
        · unfold laneV1
          isplitl [F9_dst]; · iexact F9_dst
          iexists _; isplitl [R7]; · iexact R7
          ipureintro; exact lanes_zero d L a5 a7 g5 _
        iintro %_ HI
        unfold laneV1
        icases HI with ⟨H5, %g7', H7, %hl7⟩
        have hl7 : Lanes d L a5 a7 g5 g7' 200 := Eq.mp (congrArg (Lanes d L a5 a7 g5 g7') trips3) hl7
        sl_exec
        sl_step
        isplitr; · iexact Hmw
        isplitl [HO]
        · iexists _; isplitr
          rotate_left
          · iexact HO
          ipureintro; intro p hp
          rcases Finset.mem_insert.mp hp with rfl | hp
          · exact .inr rfl
          rcases Finset.mem_insert.mp hp with rfl | hp
          · exact .inr rfl
          rcases Finset.mem_insert.mp hp with rfl | hp
          · exact .inr rfl
          rcases Finset.mem_insert.mp hp with rfl | hp
          · exact .inr rfl
          exact hW' p hp
        isplitl [HX F8_src F9_src]
        · iapply (Entails.of_eq (xSet_in (xP d L fx) k.val hk).symm)
          isplitl [F8_src]; · iapply (Entails.of_eq (xP_pos d L fx v0).symm); iexact F8_src
          isplitl [F9_src]; · iapply (Entails.of_eq (xP_pos d L fx v1).symm); iexact F9_src
          iexact HX
        isplitl [HOut F10_dst F11_dst]
        · iapply (Entails.of_eq (oSet_in (oMix d L fx (k.val + 1)) k.val hk (by omega)).symm)
          isplitl [F10_dst]; · iapply (Entails.of_eq ((oMix_lt d L fx (t := k.val + 1) (n := 2 * k.val - 2) (by omega)).trans (oQ_pos d L fx hm0.2)).symm); iexact F10_dst
          isplitl [F11_dst]
          · iapply (Entails.of_eq ((oMix_lt d L fx (t := k.val + 1) (n := 2 * k.val - 1) (by omega)).trans (oQ_pos d L fx (n := 2 * k.val - 1) (by have := hm1.2; rwa [show 2 * k.val + 1 - 2 = 2 * k.val - 1 by omega] at this))).symm)
            iapply (Entails.of_eq (congrArg (oqPiece d L fx) (show 2 * k.val + 1 - 2 = 2 * k.val - 1 by omega))); iexact F11_dst
          iapply (Entails.of_eq (oMix_core d L fx k.val)); iexact HOut
        isplitl [F8]
        · iapply (Entails.of_eq (congrArg (inSlotV d L fx a4 cc17_scratch4.sem) (show 2 * k.val + 2 = 2 * (k.val + 1) by ring)))
          iapply (fl_inV d L fx (off_6 L k v2) (k17_off6_inb L k k17_h3) v2 a4 cc17_scratch4.sem); iexists _, _
          isplitr
          rotate_left
          · iexact F8
          ipureintro; intro y; rfl
        isplitl [F10 H6]
        · iapply (Entails.of_eq (congrArg (outSlotV d L fx a6 cc17_scratch6.sem) (show 2 * k.val + 2 = 2 * (k.val + 1) by ring)))
          iapply (fl_outV d L fx (off_5 L k v0) (k17_off5_inb L k k17_h2) v0 a4 a6 cc17_scratch6.sem f0 g4 g6' hl6 hin4); iexists _
          isplitr
          rotate_left
          · isplitl [F10]; · iexact F10
            iexact H6
          ipureintro; intro y; rfl
        isplitl [F9]
        · iapply (Entails.of_eq (congrArg (inSlotV d L fx a5 cc17_scratch5.sem) (show 2 * k.val + 3 = 2 * (k.val + 1) + 1 by ring)))
          iapply (fl_inV d L fx (off_11 L k v3') (k17_off11_inb L k k17_h6) v3' a5 cc17_scratch5.sem); iexists _, _
          isplitr
          rotate_left
          · iexact F9
          ipureintro; intro y; rfl
        · iapply (Entails.of_eq (congrArg (outSlotV d L fx a7 cc17_scratch7.sem) (show 2 * k.val + 1 + 2 = 2 * (k.val + 1) + 1 by ring)))
          iapply (fl_outV d L fx (off_10 L k v1) (k17_off10_inb L k k17_h5) v1 a5 a7 cc17_scratch7.sem f1 g5 g7' hl7 hin5); iexists _
          isplitr
          rotate_left
          · isplitl [F11]; · iexact F11
            iexact H7
          ipureintro; intro y; rfl
      · by_cases h6 : k.val = 6
        · have hb : ¬ big L := fun hb => v3 (Or.inr ⟨by omega, hb⟩)
          -- trip 6 of a tile with fifteen pieces: no sixteenth piece to fetch
          have k17_h1 : k17_cond1 k = 1#1 := (cond1_iff k).mpr (by omega)
          have k17_h2 : k17_cond2 L k = 1#1 := cond2_iff L k
          have k17_h3 : k17_cond3 L k = 1#1 := (cond3_iff L k).mpr (by omega)
          have k17_h4 : k17_cond4 k = 1#1 := (cond4_iff k).mpr (by omega)
          have k17_h5 : k17_cond5 L k = 1#1 := (cond5_iff L k).mpr (by first | (unfold valid big at *; omega) | (unfold big at *; omega) | omega)
          have k17_h6 : ¬ k17_cond6 L k = 1#1 := fun h => absurd ((cond6_iff L k).mp h) (by first | (unfold valid big at *; omega) | (unfold big at *; omega) | omega)
          have v0 : valid L (2 * k.val) := by unfold valid big at *; omega
          have v1 : valid L (2 * k.val + 1) := by unfold valid big at *; omega
          have v2 : valid L (2 * k.val + 2) := by unfold valid big at *; omega
          have v3' : ¬ valid L (2 * k.val + 3) := by unfold valid big at *; omega
          have hm0 : 2 ≤ 2 * k.val ∧ valid L (2 * k.val - 2) := ⟨by omega, by unfold valid big at *; omega⟩
          have hm1 : 2 ≤ 2 * k.val + 1 ∧ valid L (2 * k.val + 1 - 2) := ⟨by omega, by unfold valid big at *; omega⟩
          ihave S8 := (Entails.of_eq (inSlotV_pos d L fx v0)) $$ S8
          icases S8 with ⟨%g4, %hin4, F8⟩
          ihave S9 := (Entails.of_eq (inSlotV_pos d L fx v1)) $$ S9
          icases S9 with ⟨%g5, %hin5, F9⟩
          ihave S10 := (Entails.of_eq (outSlotV_pos d L fx hm0)) $$ S10
          icases S10 with ⟨%g6, F10, R6⟩
          ihave S11 := (Entails.of_eq (outSlotV_pos d L fx hm1)) $$ S11
          icases S11 with ⟨%g7, F11, R7⟩
          ihave HX := (Entails.of_eq (xSet_out (xP d L fx) k.val hk)) $$ HX
          icases HX with ⟨X2, -, HX⟩
          ihave X2 := (Entails.of_eq (xP_pos d L fx v2)) $$ X2
          ihave X2 := (Entails.of_eq (in_congr d L (off_6 L k v2).symm (in_inb L _) (k17_off6_inb L k k17_h3) fx)) $$ X2
          ihave HOut := (Entails.of_eq (oSet_out (oMix d L fx k.val) k.val hk)) $$ HOut
          icases HOut with ⟨Y0, Y1, HOut⟩
          ihave Y0 := (Entails.of_eq ((oMix_ge d L fx (t := k.val) (n := 2 * k.val) (by omega)).trans (oP_pos (F := F) d L v0))) $$ Y0
          icases Y0 with ⟨%f0, Y0⟩
          ihave Y0 := (Entails.of_eq (out_congr d L (off_5 L k v0).symm (out_inb L _) (k17_off5_inb L k k17_h2) f0)) $$ Y0
          ihave Y1 := (Entails.of_eq ((oMix_ge d L fx (t := k.val) (n := 2 * k.val + 1) (by omega)).trans (oP_pos (F := F) d L v1))) $$ Y1
          icases Y1 with ⟨%f1, Y1⟩
          ihave Y1 := (Entails.of_eq (out_congr d L (off_10 L k v1).symm (out_inb L _) (k17_off10_inb L k k17_h5) f1)) $$ Y1
          sl_exec
          sl_for (laneV0 d L g4) $$ [F8_dst R6]
          case region =>
            intro (j : Fin k17_t2_loop.trips) _
            unfold laneV0
            iintro ⟨HA, %g, HB, %hl⟩
            sl_exec
            sl_step
            isplitl [HA]; · iexact HA
            iexists _; isplitl [HB]; · iexact HB
            ipureintro; exact lanes_step d L a4 a6 g4 g j _ _ hl
          · unfold laneV0
            isplitl [F8_dst]; · iexact F8_dst
            iexists _; isplitl [R6]; · iexact R6
            ipureintro; exact lanes_zero d L a4 a6 g4 _
          iintro %_ HI
          unfold laneV0
          icases HI with ⟨H4, %g6', H6, %hl6⟩
          have hl6 : Lanes d L a4 a6 g4 g6' 200 := Eq.mp (congrArg (Lanes d L a4 a6 g4 g6') trips2) hl6
          sl_exec
          sl_for (laneV1 d L g5) $$ [F9_dst R7]
          case region =>
            intro (j : Fin k17_t3_loop.trips) _
            unfold laneV1
            iintro ⟨HA, %g, HB, %hl⟩
            sl_exec
            sl_step
            isplitl [HA]; · iexact HA
            iexists _; isplitl [HB]; · iexact HB
            ipureintro; exact lanes_step' d L a5 a7 g5 g j _ _ hl
          · unfold laneV1
            isplitl [F9_dst]; · iexact F9_dst
            iexists _; isplitl [R7]; · iexact R7
            ipureintro; exact lanes_zero d L a5 a7 g5 _
          iintro %_ HI
          unfold laneV1
          icases HI with ⟨H5, %g7', H7, %hl7⟩
          have hl7 : Lanes d L a5 a7 g5 g7' 200 := Eq.mp (congrArg (Lanes d L a5 a7 g5 g7') trips3) hl7
          sl_exec
          sl_step
          isplitr; · iexact Hmw
          isplitl [HO]
          · iexists _; isplitr
            rotate_left
            · iexact HO
            ipureintro; intro p hp
            rcases Finset.mem_insert.mp hp with rfl | hp
            · exact .inr rfl
            rcases Finset.mem_insert.mp hp with rfl | hp
            · exact .inr rfl
            rcases Finset.mem_insert.mp hp with rfl | hp
            · exact .inr rfl
            rcases Finset.mem_insert.mp hp with rfl | hp
            · exact .inr rfl
            exact hW' p hp
          isplitl [HX F8_src F9_src]
          · iapply (Entails.of_eq (xSet_in (xP d L fx) k.val hk).symm)
            isplitl [F8_src]; · iapply (Entails.of_eq (xP_pos d L fx v0).symm); iexact F8_src
            isplitl [F9_src]; · iapply (Entails.of_eq (xP_pos d L fx v1).symm); iexact F9_src
            iexact HX
          isplitl [HOut F10_dst F11_dst]
          · iapply (Entails.of_eq (oSet_in (oMix d L fx (k.val + 1)) k.val hk (by omega)).symm)
            isplitl [F10_dst]; · iapply (Entails.of_eq ((oMix_lt d L fx (t := k.val + 1) (n := 2 * k.val - 2) (by omega)).trans (oQ_pos d L fx hm0.2)).symm); iexact F10_dst
            isplitl [F11_dst]
            · iapply (Entails.of_eq ((oMix_lt d L fx (t := k.val + 1) (n := 2 * k.val - 1) (by omega)).trans (oQ_pos d L fx (n := 2 * k.val - 1) (by have := hm1.2; rwa [show 2 * k.val + 1 - 2 = 2 * k.val - 1 by omega] at this))).symm)
              iapply (Entails.of_eq (congrArg (oqPiece d L fx) (show 2 * k.val + 1 - 2 = 2 * k.val - 1 by omega))); iexact F11_dst
            iapply (Entails.of_eq (oMix_core d L fx k.val)); iexact HOut
          isplitl [F8]
          · iapply (Entails.of_eq (congrArg (inSlotV d L fx a4 cc17_scratch4.sem) (show 2 * k.val + 2 = 2 * (k.val + 1) by ring)))
            iapply (fl_inV d L fx (off_6 L k v2) (k17_off6_inb L k k17_h3) v2 a4 cc17_scratch4.sem); iexists _, _
            isplitr
            rotate_left
            · iexact F8
            ipureintro; intro y; rfl
          isplitl [F10 H6]
          · iapply (Entails.of_eq (congrArg (outSlotV d L fx a6 cc17_scratch6.sem) (show 2 * k.val + 2 = 2 * (k.val + 1) by ring)))
            iapply (fl_outV d L fx (off_5 L k v0) (k17_off5_inb L k k17_h2) v0 a4 a6 cc17_scratch6.sem f0 g4 g6' hl6 hin4); iexists _
            isplitr
            rotate_left
            · isplitl [F10]; · iexact F10
              iexact H6
            ipureintro; intro y; rfl
          isplitl [H5 F9]
          · iapply (Entails.of_eq (congrArg (inSlotV d L fx a5 cc17_scratch5.sem) (show 2 * k.val + 3 = 2 * (k.val + 1) + 1 by ring)))
            iapply (Entails.of_eq (inSlotV_neg d L fx v3').symm)
            isplitl [H5]; · iexists _; iexact H5
            iexact F9
          · iapply (Entails.of_eq (congrArg (outSlotV d L fx a7 cc17_scratch7.sem) (show 2 * k.val + 1 + 2 = 2 * (k.val + 1) + 1 by ring)))
            iapply (fl_outV d L fx (off_10 L k v1) (k17_off10_inb L k k17_h5) v1 a5 a7 cc17_scratch7.sem f1 g5 g7' hl7 hin5); iexists _
            isplitr
            rotate_left
            · isplitl [F11]; · iexact F11
              iexact H7
            ipureintro; intro y; rfl
        · have h7 : k.val = 7 := by unfold valid at v3; omega
          by_cases hb : big L
          · -- the last trip of a tile with sixteen pieces: nothing more to fetch
            have k17_h1 : k17_cond1 k = 1#1 := (cond1_iff k).mpr (by omega)
            have k17_h2 : k17_cond2 L k = 1#1 := cond2_iff L k
            have k17_h3 : ¬ k17_cond3 L k = 1#1 := fun h => absurd ((cond3_iff L k).mp h) (by omega)
            have k17_h4 : k17_cond4 k = 1#1 := (cond4_iff k).mpr (by omega)
            have k17_h5 : k17_cond5 L k = 1#1 := (cond5_iff L k).mpr (by first | (unfold valid big at *; omega) | (unfold big at *; omega) | omega)
            have k17_h6 : ¬ k17_cond6 L k = 1#1 := fun h => absurd ((cond6_iff L k).mp h) (by first | (unfold valid big at *; omega) | (unfold big at *; omega) | omega)
            have v0 : valid L (2 * k.val) := by unfold valid big at *; omega
            have v1 : valid L (2 * k.val + 1) := by unfold valid big at *; omega
            have v2 : ¬ valid L (2 * k.val + 2) := by unfold valid big at *; omega
            have v3' : ¬ valid L (2 * k.val + 3) := by unfold valid big at *; omega
            have hm0 : 2 ≤ 2 * k.val ∧ valid L (2 * k.val - 2) := ⟨by omega, by unfold valid big at *; omega⟩
            have hm1 : 2 ≤ 2 * k.val + 1 ∧ valid L (2 * k.val + 1 - 2) := ⟨by omega, by unfold valid big at *; omega⟩
            ihave S8 := (Entails.of_eq (inSlotV_pos d L fx v0)) $$ S8
            icases S8 with ⟨%g4, %hin4, F8⟩
            ihave S9 := (Entails.of_eq (inSlotV_pos d L fx v1)) $$ S9
            icases S9 with ⟨%g5, %hin5, F9⟩
            ihave S10 := (Entails.of_eq (outSlotV_pos d L fx hm0)) $$ S10
            icases S10 with ⟨%g6, F10, R6⟩
            ihave S11 := (Entails.of_eq (outSlotV_pos d L fx hm1)) $$ S11
            icases S11 with ⟨%g7, F11, R7⟩
            ihave HX := (Entails.of_eq (xSet_out (xP d L fx) k.val hk)) $$ HX
            icases HX with ⟨-, -, HX⟩
            ihave HOut := (Entails.of_eq (oSet_out (oMix d L fx k.val) k.val hk)) $$ HOut
            icases HOut with ⟨Y0, Y1, HOut⟩
            ihave Y0 := (Entails.of_eq ((oMix_ge d L fx (t := k.val) (n := 2 * k.val) (by omega)).trans (oP_pos (F := F) d L v0))) $$ Y0
            icases Y0 with ⟨%f0, Y0⟩
            ihave Y0 := (Entails.of_eq (out_congr d L (off_5 L k v0).symm (out_inb L _) (k17_off5_inb L k k17_h2) f0)) $$ Y0
            ihave Y1 := (Entails.of_eq ((oMix_ge d L fx (t := k.val) (n := 2 * k.val + 1) (by omega)).trans (oP_pos (F := F) d L v1))) $$ Y1
            icases Y1 with ⟨%f1, Y1⟩
            ihave Y1 := (Entails.of_eq (out_congr d L (off_10 L k v1).symm (out_inb L _) (k17_off10_inb L k k17_h5) f1)) $$ Y1
            sl_exec
            sl_for (laneV0 d L g4) $$ [F8_dst R6]
            case region =>
              intro (j : Fin k17_t2_loop.trips) _
              unfold laneV0
              iintro ⟨HA, %g, HB, %hl⟩
              sl_exec
              sl_step
              isplitl [HA]; · iexact HA
              iexists _; isplitl [HB]; · iexact HB
              ipureintro; exact lanes_step d L a4 a6 g4 g j _ _ hl
            · unfold laneV0
              isplitl [F8_dst]; · iexact F8_dst
              iexists _; isplitl [R6]; · iexact R6
              ipureintro; exact lanes_zero d L a4 a6 g4 _
            iintro %_ HI
            unfold laneV0
            icases HI with ⟨H4, %g6', H6, %hl6⟩
            have hl6 : Lanes d L a4 a6 g4 g6' 200 := Eq.mp (congrArg (Lanes d L a4 a6 g4 g6') trips2) hl6
            sl_exec
            sl_for (laneV1 d L g5) $$ [F9_dst R7]
            case region =>
              intro (j : Fin k17_t3_loop.trips) _
              unfold laneV1
              iintro ⟨HA, %g, HB, %hl⟩
              sl_exec
              sl_step
              isplitl [HA]; · iexact HA
              iexists _; isplitl [HB]; · iexact HB
              ipureintro; exact lanes_step' d L a5 a7 g5 g j _ _ hl
            · unfold laneV1
              isplitl [F9_dst]; · iexact F9_dst
              iexists _; isplitl [R7]; · iexact R7
              ipureintro; exact lanes_zero d L a5 a7 g5 _
            iintro %_ HI
            unfold laneV1
            icases HI with ⟨H5, %g7', H7, %hl7⟩
            have hl7 : Lanes d L a5 a7 g5 g7' 200 := Eq.mp (congrArg (Lanes d L a5 a7 g5 g7') trips3) hl7
            sl_exec
            sl_step
            isplitr; · iexact Hmw
            isplitl [HO]
            · iexists _; isplitr
              rotate_left
              · iexact HO
              ipureintro; intro p hp
              rcases Finset.mem_insert.mp hp with rfl | hp
              · exact .inr rfl
              rcases Finset.mem_insert.mp hp with rfl | hp
              · exact .inr rfl
              rcases Finset.mem_insert.mp hp with rfl | hp
              · exact .inr rfl
              rcases Finset.mem_insert.mp hp with rfl | hp
              · exact .inr rfl
              exact hW' p hp
            isplitl [HX F8_src F9_src]
            · iapply (Entails.of_eq (xSet_in (xP d L fx) k.val hk).symm)
              isplitl [F8_src]; · iapply (Entails.of_eq (xP_pos d L fx v0).symm); iexact F8_src
              isplitl [F9_src]; · iapply (Entails.of_eq (xP_pos d L fx v1).symm); iexact F9_src
              iexact HX
            isplitl [HOut F10_dst F11_dst]
            · iapply (Entails.of_eq (oSet_in (oMix d L fx (k.val + 1)) k.val hk (by omega)).symm)
              isplitl [F10_dst]; · iapply (Entails.of_eq ((oMix_lt d L fx (t := k.val + 1) (n := 2 * k.val - 2) (by omega)).trans (oQ_pos d L fx hm0.2)).symm); iexact F10_dst
              isplitl [F11_dst]
              · iapply (Entails.of_eq ((oMix_lt d L fx (t := k.val + 1) (n := 2 * k.val - 1) (by omega)).trans (oQ_pos d L fx (n := 2 * k.val - 1) (by have := hm1.2; rwa [show 2 * k.val + 1 - 2 = 2 * k.val - 1 by omega] at this))).symm)
                iapply (Entails.of_eq (congrArg (oqPiece d L fx) (show 2 * k.val + 1 - 2 = 2 * k.val - 1 by omega))); iexact F11_dst
              iapply (Entails.of_eq (oMix_core d L fx k.val)); iexact HOut
            isplitl [H4 F8]
            · iapply (Entails.of_eq (congrArg (inSlotV d L fx a4 cc17_scratch4.sem) (show 2 * k.val + 2 = 2 * (k.val + 1) by ring)))
              iapply (Entails.of_eq (inSlotV_neg d L fx v2).symm)
              isplitl [H4]; · iexists _; iexact H4
              iexact F8
            isplitl [F10 H6]
            · iapply (Entails.of_eq (congrArg (outSlotV d L fx a6 cc17_scratch6.sem) (show 2 * k.val + 2 = 2 * (k.val + 1) by ring)))
              iapply (fl_outV d L fx (off_5 L k v0) (k17_off5_inb L k k17_h2) v0 a4 a6 cc17_scratch6.sem f0 g4 g6' hl6 hin4); iexists _
              isplitr
              rotate_left
              · isplitl [F10]; · iexact F10
                iexact H6
              ipureintro; intro y; rfl
            isplitl [H5 F9]
            · iapply (Entails.of_eq (congrArg (inSlotV d L fx a5 cc17_scratch5.sem) (show 2 * k.val + 3 = 2 * (k.val + 1) + 1 by ring)))
              iapply (Entails.of_eq (inSlotV_neg d L fx v3').symm)
              isplitl [H5]; · iexists _; iexact H5
              iexact F9
            · iapply (Entails.of_eq (congrArg (outSlotV d L fx a7 cc17_scratch7.sem) (show 2 * k.val + 1 + 2 = 2 * (k.val + 1) + 1 by ring)))
              iapply (fl_outV d L fx (off_10 L k v1) (k17_off10_inb L k k17_h5) v1 a5 a7 cc17_scratch7.sem f1 g5 g7' hl7 hin5); iexists _
              isplitr
              rotate_left
              · isplitl [F11]; · iexact F11
                iexact H7
              ipureintro; intro y; rfl
          · -- the last trip of a tile with fifteen pieces: the second slot only drains
            have k17_h1 : k17_cond1 k = 1#1 := (cond1_iff k).mpr (by omega)
            have k17_h2 : k17_cond2 L k = 1#1 := cond2_iff L k
            have k17_h3 : ¬ k17_cond3 L k = 1#1 := fun h => absurd ((cond3_iff L k).mp h) (by omega)
            have k17_h4 : k17_cond4 k = 1#1 := (cond4_iff k).mpr (by omega)
            have k17_h5 : ¬ k17_cond5 L k = 1#1 := fun h => absurd ((cond5_iff L k).mp h) (by first | (unfold valid big at *; omega) | (unfold big at *; omega) | omega)
            have k17_h6 : ¬ k17_cond6 L k = 1#1 := fun h => absurd ((cond6_iff L k).mp h) (by first | (unfold valid big at *; omega) | (unfold big at *; omega) | omega)
            have v0 : valid L (2 * k.val) := by unfold valid big at *; omega
            have v1 : ¬ valid L (2 * k.val + 1) := by unfold valid big at *; omega
            have v2 : ¬ valid L (2 * k.val + 2) := by unfold valid big at *; omega
            have v3' : ¬ valid L (2 * k.val + 3) := by unfold valid big at *; omega
            have hm0 : 2 ≤ 2 * k.val ∧ valid L (2 * k.val - 2) := ⟨by omega, by unfold valid big at *; omega⟩
            have hm1 : 2 ≤ 2 * k.val + 1 ∧ valid L (2 * k.val + 1 - 2) := ⟨by omega, by unfold valid big at *; omega⟩
            ihave S8 := (Entails.of_eq (inSlotV_pos d L fx v0)) $$ S8
            icases S8 with ⟨%g4, %hin4, F8⟩
            ihave S9 := (Entails.of_eq (inSlotV_neg d L fx v1)) $$ S9
            icases S9 with ⟨⟨%g5, H5⟩, F9⟩
            ihave S10 := (Entails.of_eq (outSlotV_pos d L fx hm0)) $$ S10
            icases S10 with ⟨%g6, F10, R6⟩
            ihave S11 := (Entails.of_eq (outSlotV_pos d L fx hm1)) $$ S11
            icases S11 with ⟨%g7, F11, R7⟩
            ihave HX := (Entails.of_eq (xSet_out (xP d L fx) k.val hk)) $$ HX
            icases HX with ⟨-, -, HX⟩
            ihave HOut := (Entails.of_eq (oSet_out (oMix d L fx k.val) k.val hk)) $$ HOut
            icases HOut with ⟨Y0, -, HOut⟩
            ihave Y0 := (Entails.of_eq ((oMix_ge d L fx (t := k.val) (n := 2 * k.val) (by omega)).trans (oP_pos (F := F) d L v0))) $$ Y0
            icases Y0 with ⟨%f0, Y0⟩
            ihave Y0 := (Entails.of_eq (out_congr d L (off_5 L k v0).symm (out_inb L _) (k17_off5_inb L k k17_h2) f0)) $$ Y0
            sl_exec
            sl_for (laneV0 d L g4) $$ [F8_dst R6]
            case region =>
              intro (j : Fin k17_t2_loop.trips) _
              unfold laneV0
              iintro ⟨HA, %g, HB, %hl⟩
              sl_exec
              sl_step
              isplitl [HA]; · iexact HA
              iexists _; isplitl [HB]; · iexact HB
              ipureintro; exact lanes_step d L a4 a6 g4 g j _ _ hl
            · unfold laneV0
              isplitl [F8_dst]; · iexact F8_dst
              iexists _; isplitl [R6]; · iexact R6
              ipureintro; exact lanes_zero d L a4 a6 g4 _
            iintro %_ HI
            unfold laneV0
            icases HI with ⟨H4, %g6', H6, %hl6⟩
            have hl6 : Lanes d L a4 a6 g4 g6' 200 := Eq.mp (congrArg (Lanes d L a4 a6 g4 g6') trips2) hl6
            sl_exec
            sl_step
            isplitr; · iexact Hmw
            isplitl [HO]
            · iexists _; isplitr
              rotate_left
              · iexact HO
              ipureintro; intro p hp
              rcases Finset.mem_insert.mp hp with rfl | hp
              · exact .inr rfl
              rcases Finset.mem_insert.mp hp with rfl | hp
              · exact .inr rfl
              rcases Finset.mem_insert.mp hp with rfl | hp
              · exact .inr rfl
              exact hW' p hp
            isplitl [HX F8_src]
            · iapply (Entails.of_eq (xSet_in (xP d L fx) k.val hk).symm)
              isplitl [F8_src]; · iapply (Entails.of_eq (xP_pos d L fx v0).symm); iexact F8_src
              isplitr; · iapply (Entails.of_eq (xP_neg d L fx v1).symm); iempintro
              iexact HX
            isplitl [HOut F10_dst F11_dst]
            · iapply (Entails.of_eq (oSet_in (oMix d L fx (k.val + 1)) k.val hk (by omega)).symm)
              isplitl [F10_dst]; · iapply (Entails.of_eq ((oMix_lt d L fx (t := k.val + 1) (n := 2 * k.val - 2) (by omega)).trans (oQ_pos d L fx hm0.2)).symm); iexact F10_dst
              isplitl [F11_dst]
              · iapply (Entails.of_eq ((oMix_lt d L fx (t := k.val + 1) (n := 2 * k.val - 1) (by omega)).trans (oQ_pos d L fx (n := 2 * k.val - 1) (by have := hm1.2; rwa [show 2 * k.val + 1 - 2 = 2 * k.val - 1 by omega] at this))).symm)
                iapply (Entails.of_eq (congrArg (oqPiece d L fx) (show 2 * k.val + 1 - 2 = 2 * k.val - 1 by omega))); iexact F11_dst
              iapply (Entails.of_eq (oMix_core d L fx k.val)); iexact HOut
            isplitl [H4 F8]
            · iapply (Entails.of_eq (congrArg (inSlotV d L fx a4 cc17_scratch4.sem) (show 2 * k.val + 2 = 2 * (k.val + 1) by ring)))
              iapply (Entails.of_eq (inSlotV_neg d L fx v2).symm)
              isplitl [H4]; · iexists _; iexact H4
              iexact F8
            isplitl [F10 H6]
            · iapply (Entails.of_eq (congrArg (outSlotV d L fx a6 cc17_scratch6.sem) (show 2 * k.val + 2 = 2 * (k.val + 1) by ring)))
              iapply (fl_outV d L fx (off_5 L k v0) (k17_off5_inb L k k17_h2) v0 a4 a6 cc17_scratch6.sem f0 g4 g6' hl6 hin4); iexists _
              isplitr
              rotate_left
              · isplitl [F10]; · iexact F10
                iexact H6
              ipureintro; intro y; rfl
            isplitl [H5 F9]
            · iapply (Entails.of_eq (congrArg (inSlotV d L fx a5 cc17_scratch5.sem) (show 2 * k.val + 3 = 2 * (k.val + 1) + 1 by ring)))
              iapply (Entails.of_eq (inSlotV_neg d L fx v3').symm)
              isplitl [H5]; · iexists _; iexact H5
              iexact F9
            · iapply (Entails.of_eq (outSlotV_neg d L fx (m := 2 * (k.val + 1) + 1) (by intro h; apply v1; have := h.2; rwa [show 2 * (k.val + 1) + 1 - 2 = 2 * k.val + 1 by omega] at this)).symm)
              isplitl [R7]; · iexists _; iexact R7
              iexact F11
    · have hk0 : k.val = 0 := by omega
      -- the first trip: nothing to drain
      have k17_h1 : ¬ k17_cond1 k = 1#1 := fun h => absurd ((cond1_iff k).mp h) (by omega)
      have k17_h2 : k17_cond2 L k = 1#1 := cond2_iff L k
      have k17_h3 : k17_cond3 L k = 1#1 := (cond3_iff L k).mpr (by omega)
      have k17_h4 : ¬ k17_cond4 k = 1#1 := fun h => absurd ((cond4_iff k).mp h) (by omega)
      have k17_h5 : k17_cond5 L k = 1#1 := (cond5_iff L k).mpr (by first | (unfold valid big at *; omega) | (unfold big at *; omega) | omega)
      have k17_h6 : k17_cond6 L k = 1#1 := (cond6_iff L k).mpr (by first | (unfold valid big at *; omega) | (unfold big at *; omega) | omega)
      have v0 : valid L (2 * k.val) := by unfold valid big at *; omega
      have v1 : valid L (2 * k.val + 1) := by unfold valid big at *; omega
      have v2 : valid L (2 * k.val + 2) := by unfold valid big at *; omega
      have v3' : valid L (2 * k.val + 3) := by unfold valid big at *; omega
      have hm0 : ¬ (2 ≤ 2 * k.val ∧ valid L (2 * k.val - 2)) := by omega
      have hm1 : ¬ (2 ≤ 2 * k.val + 1 ∧ valid L (2 * k.val + 1 - 2)) := by omega
      ihave S8 := (Entails.of_eq (inSlotV_pos d L fx v0)) $$ S8
      icases S8 with ⟨%g4, %hin4, F8⟩
      ihave S9 := (Entails.of_eq (inSlotV_pos d L fx v1)) $$ S9
      icases S9 with ⟨%g5, %hin5, F9⟩
      ihave S10 := (Entails.of_eq (outSlotV_neg d L fx hm0)) $$ S10
      icases S10 with ⟨⟨%g6, R6⟩, F10⟩
      ihave S11 := (Entails.of_eq (outSlotV_neg d L fx hm1)) $$ S11
      icases S11 with ⟨⟨%g7, R7⟩, F11⟩
      ihave HX := (Entails.of_eq (xSet_out (xP d L fx) k.val hk)) $$ HX
      icases HX with ⟨X2, X3, HX⟩
      ihave X2 := (Entails.of_eq (xP_pos d L fx v2)) $$ X2
      ihave X2 := (Entails.of_eq (in_congr d L (off_6 L k v2).symm (in_inb L _) (k17_off6_inb L k k17_h3) fx)) $$ X2
      ihave X3 := (Entails.of_eq (xP_pos d L fx v3')) $$ X3
      ihave X3 := (Entails.of_eq (in_congr d L (off_11 L k v3').symm (in_inb L _) (k17_off11_inb L k k17_h6) fx)) $$ X3
      ihave HOut := (Entails.of_eq (oSet_out (oMix d L fx k.val) k.val hk)) $$ HOut
      icases HOut with ⟨Y0, Y1, HOut⟩
      ihave Y0 := (Entails.of_eq ((oMix_ge d L fx (t := k.val) (n := 2 * k.val) (by omega)).trans (oP_pos (F := F) d L v0))) $$ Y0
      icases Y0 with ⟨%f0, Y0⟩
      ihave Y0 := (Entails.of_eq (out_congr d L (off_5 L k v0).symm (out_inb L _) (k17_off5_inb L k k17_h2) f0)) $$ Y0
      ihave Y1 := (Entails.of_eq ((oMix_ge d L fx (t := k.val) (n := 2 * k.val + 1) (by omega)).trans (oP_pos (F := F) d L v1))) $$ Y1
      icases Y1 with ⟨%f1, Y1⟩
      ihave Y1 := (Entails.of_eq (out_congr d L (off_10 L k v1).symm (out_inb L _) (k17_off10_inb L k k17_h5) f1)) $$ Y1
      sl_exec
      sl_for (laneV0 d L g4) $$ [F8_dst R6]
      case region =>
        intro (j : Fin k17_t2_loop.trips) _
        unfold laneV0
        iintro ⟨HA, %g, HB, %hl⟩
        sl_exec
        sl_step
        isplitl [HA]; · iexact HA
        iexists _; isplitl [HB]; · iexact HB
        ipureintro; exact lanes_step d L a4 a6 g4 g j _ _ hl
      · unfold laneV0
        isplitl [F8_dst]; · iexact F8_dst
        iexists _; isplitl [R6]; · iexact R6
        ipureintro; exact lanes_zero d L a4 a6 g4 _
      iintro %_ HI
      unfold laneV0
      icases HI with ⟨H4, %g6', H6, %hl6⟩
      have hl6 : Lanes d L a4 a6 g4 g6' 200 := Eq.mp (congrArg (Lanes d L a4 a6 g4 g6') trips2) hl6
      sl_exec
      sl_for (laneV1 d L g5) $$ [F9_dst R7]
      case region =>
        intro (j : Fin k17_t3_loop.trips) _
        unfold laneV1
        iintro ⟨HA, %g, HB, %hl⟩
        sl_exec
        sl_step
        isplitl [HA]; · iexact HA
        iexists _; isplitl [HB]; · iexact HB
        ipureintro; exact lanes_step' d L a5 a7 g5 g j _ _ hl
      · unfold laneV1
        isplitl [F9_dst]; · iexact F9_dst
        iexists _; isplitl [R7]; · iexact R7
        ipureintro; exact lanes_zero d L a5 a7 g5 _
      iintro %_ HI
      unfold laneV1
      icases HI with ⟨H5, %g7', H7, %hl7⟩
      have hl7 : Lanes d L a5 a7 g5 g7' 200 := Eq.mp (congrArg (Lanes d L a5 a7 g5 g7') trips3) hl7
      sl_exec
      sl_step
      isplitr; · iexact Hmw
      isplitl [HO]
      · iexists _; isplitr
        rotate_left
        · iexact HO
        ipureintro; intro p hp
        rcases Finset.mem_insert.mp hp with rfl | hp
        · exact .inr rfl
        rcases Finset.mem_insert.mp hp with rfl | hp
        · exact .inr rfl
        exact hW' p hp
      isplitl [HX F8_src F9_src]
      · iapply (Entails.of_eq (xSet_in (xP d L fx) k.val hk).symm)
        isplitl [F8_src]; · iapply (Entails.of_eq (xP_pos d L fx v0).symm); iexact F8_src
        isplitl [F9_src]; · iapply (Entails.of_eq (xP_pos d L fx v1).symm); iexact F9_src
        iexact HX
      isplitl [HOut]
      · iapply (Entails.of_eq (congrArg (fun s => bigSep s (oMix d L fx (k.val + 1))) (show oCore k.val = oSet (k.val + 1) by rw [hk0]; decide)))
        iapply (Entails.of_eq (oMix_core d L fx k.val)); iexact HOut
      isplitl [F8]
      · iapply (Entails.of_eq (congrArg (inSlotV d L fx a4 cc17_scratch4.sem) (show 2 * k.val + 2 = 2 * (k.val + 1) by ring)))
        iapply (fl_inV d L fx (off_6 L k v2) (k17_off6_inb L k k17_h3) v2 a4 cc17_scratch4.sem); iexists _, _
        isplitr
        rotate_left
        · iexact F8
        ipureintro; intro y; rfl
      isplitl [F10 H6]
      · iapply (Entails.of_eq (congrArg (outSlotV d L fx a6 cc17_scratch6.sem) (show 2 * k.val + 2 = 2 * (k.val + 1) by ring)))
        iapply (fl_outV d L fx (off_5 L k v0) (k17_off5_inb L k k17_h2) v0 a4 a6 cc17_scratch6.sem f0 g4 g6' hl6 hin4); iexists _
        isplitr
        rotate_left
        · isplitl [F10]; · iexact F10
          iexact H6
        ipureintro; intro y; rfl
      isplitl [F9]
      · iapply (Entails.of_eq (congrArg (inSlotV d L fx a5 cc17_scratch5.sem) (show 2 * k.val + 3 = 2 * (k.val + 1) + 1 by ring)))
        iapply (fl_inV d L fx (off_11 L k v3') (k17_off11_inb L k k17_h6) v3' a5 cc17_scratch5.sem); iexists _, _
        isplitr
        rotate_left
        · iexact F9
        ipureintro; intro y; rfl
      · iapply (Entails.of_eq (congrArg (outSlotV d L fx a7 cc17_scratch7.sem) (show 2 * k.val + 1 + 2 = 2 * (k.val + 1) + 1 by ring)))
        iapply (fl_outV d L fx (off_10 L k v1) (k17_off10_inb L k k17_h5) v1 a5 a7 cc17_scratch7.sem f1 g5 g7' hl7 hin5); iexists _
        isplitr
        rotate_left
        · isplitl [F11]; · iexact F11
          iexact H7
        ipureintro; intro y; rfl
  · unfold invV
    isplitr; · iexact Hmw
    isplitl [HO]
    · iexists W; isplitr
      · ipureintro; exact fun p hp => .inl hp
      · iexact HO
    isplitl [HX]; · iexact HX
    isplitl [HOut]; · iapply (Entails.of_eq (oMix_zero d L fx).symm); iexact HOut
    isplitl [S8]; · iexact S8
    isplitl [H6 Hs10]
    · rw [outSlotV_neg d L fx (by omega)]; isplitl [H6]; · iexists _; iexact H6
      iexact Hs10
    isplitl [S9]; · iexact S9
    rw [outSlotV_neg d L fx (by omega)]; isplitl [H7]; · iexists _; iexact H7
    iexact Hs11
  iintro %acc' HI
  ihave HI := (Entails.of_eq (congrArg (fun t => invV d L O W fx t acc') trips1)) $$ HI
  unfold invV
  icases HI with ⟨-, ⟨%W', %hW', HO⟩, HX, HOut, S8, S10, S9, S11⟩
  have nv16 : ¬ valid L (2 * 8) := by unfold valid; omega
  have nv17 : ¬ valid L (2 * 8 + 1) := by unfold valid; omega
  have hm14 : 2 ≤ 2 * 8 ∧ valid L (2 * 8 - 2) := ⟨by omega, Or.inl (by omega)⟩
  ihave S8 := (Entails.of_eq (inSlotV_neg d L fx nv16)) $$ S8
  icases S8 with ⟨⟨%g4', H4⟩, Hs8⟩
  ihave S9 := (Entails.of_eq (inSlotV_neg d L fx nv17)) $$ S9
  icases S9 with ⟨⟨%g5', H5⟩, Hs9⟩
  ihave S10 := (Entails.of_eq (outSlotV_pos d L fx hm14)) $$ S10
  icases S10 with ⟨%g6', F10, R6⟩
  by_cases hb : big L
  · have k17_h8 : k17_cond8 L = 1#1 := (cond8_iff L).mpr hb
    have hm15 : 2 ≤ 2 * 8 + 1 ∧ valid L (2 * 8 + 1 - 2) := ⟨by omega, Or.inr ⟨by omega, hb⟩⟩
    ihave S11 := (Entails.of_eq (outSlotV_pos d L fx hm15)) $$ S11
    icases S11 with ⟨%g7', F11, R7⟩
    sl_exec
    sl_step
    isplitl [HX]; · iapply (xRange_end d L fx); iexact HX
    isplitl [HOut F10_dst F11_dst]
    · iapply (Entails.of_eq (oRange_end (oQ d L fx)).symm)
      isplitl [F10_dst]; · iapply (Entails.of_eq (oQ_pos d L fx hm14.2).symm); iexact F10_dst
      isplitl [F11_dst]; · iapply (Entails.of_eq (oQ_pos d L fx hm15.2).symm); iexact F11_dst
      iapply (Entails.of_eq (oMix_end d L fx)); iexact HOut
    isplitl [H4]; · iexists _; iexact H4
    isplitl [H5]; · iexists _; iexact H5
    isplitl [R6]; · iexists _; iexact R6
    isplitl [R7]; · iexists _; iexact R7
    isplitl [Hs8]; · iexact Hs8
    isplitl [Hs9]; · iexact Hs9
    isplitl [F10]; · iexact F10
    isplitl [F11]; · iexact F11
    isplitl [HO]
    · iexists _; isplitr
      rotate_left
      · iexact HO
      ipureintro; intro p hp
      rcases Finset.mem_insert.mp hp with rfl | hp
      · exact .inr rfl
      rcases Finset.mem_insert.mp hp with rfl | hp
      · exact .inr rfl
      exact hW' p hp
    iexact HR
  · have k17_h8 : ¬ k17_cond8 L = 1#1 := fun h => hb ((cond8_iff L).mp h)
    have hm15 : ¬ (2 ≤ 2 * 8 + 1 ∧ valid L (2 * 8 + 1 - 2)) := by intro h; have := h.2; unfold valid at this; omega
    ihave S11 := (Entails.of_eq (outSlotV_neg d L fx hm15)) $$ S11
    icases S11 with ⟨⟨%g7', R7⟩, F11⟩
    sl_exec
    sl_step
    isplitl [HX]; · iapply (xRange_end d L fx); iexact HX
    isplitl [HOut F10_dst]
    · iapply (Entails.of_eq (oRange_end (oQ d L fx)).symm)
      isplitl [F10_dst]; · iapply (Entails.of_eq (oQ_pos d L fx hm14.2).symm); iexact F10_dst
      isplitr; · iapply (Entails.of_eq (oQ_neg d L fx (n := 15) (by unfold valid; omega)).symm); iempintro
      iapply (Entails.of_eq (oMix_end d L fx)); iexact HOut
    isplitl [H4]; · iexists _; iexact H4
    isplitl [H5]; · iexists _; iexact H5
    isplitl [R6]; · iexists _; iexact R6
    isplitl [R7]; · iexists _; iexact R7
    isplitl [Hs8]; · iexact Hs8
    isplitl [Hs9]; · iexact Hs9
    isplitl [F10]; · iexact F10
    isplitl [F11]; · iexact F11
    isplitl [HO]
    · iexists _; isplitr
      rotate_left
      · iexact HO
      ipureintro; intro p hp
      rcases Finset.mem_insert.mp hp with rfl | hp
      · exact .inr rfl
      exact hW' p hp
    iexact HR

/-! The subcore's scoped storage: the four staging buffers and the four semaphores of this call, and the rest. -/

abbrev c8 : GSem nD τ sig := (thr d L, SemLoc.dma cc17_scratch4.sem)
abbrev c9 : GSem nD τ sig := (thr d L, SemLoc.dma cc17_scratch5.sem)
abbrev c10 : GSem nD τ sig := (thr d L, SemLoc.dma cc17_scratch6.sem)
abbrev c11 : GSem nD τ sig := (thr d L, SemLoc.dma cc17_scratch7.sem)

omit [FloatOps F] in
theorem ownSems0_V :
    (ownSems0 (thr d L) : sProp 𝕄)
      = iprop(semVal (c8 d L) 0 ∗ semVal (c9 d L) 0 ∗ semVal (c10 d L) 0 ∗ semVal (c11 d L) 0
          ∗ bigSep (((((ownCells (thr d L)).erase (c8 d L)).erase (c9 d L)).erase (c10 d L)).erase (c11 d L)) fun g => semVal g 0) := by
  unfold SparseCore.Cfg.ownSems0
  rw [SparseCore.bigSep_erase' ((mem_ownCells (g := c8 d L)).mpr ⟨rfl, by
      show (SemLoc.dma cc17_scratch4.sem : SemLoc sig).isScoped .scVector = true; decide⟩),
    SparseCore.bigSep_erase' (Finset.mem_erase.mpr ⟨fun e => absurd (Prod.mk.inj e).2 (by decide), (mem_ownCells (g := c9 d L)).mpr ⟨rfl, by
      show (SemLoc.dma cc17_scratch5.sem : SemLoc sig).isScoped .scVector = true; decide⟩⟩),
    SparseCore.bigSep_erase' (Finset.mem_erase.mpr ⟨fun e => absurd (Prod.mk.inj e).2 (by decide), Finset.mem_erase.mpr ⟨fun e => absurd (Prod.mk.inj e).2 (by decide),
      (mem_ownCells (g := c10 d L)).mpr ⟨rfl, by show (SemLoc.dma cc17_scratch6.sem : SemLoc sig).isScoped .scVector = true; decide⟩⟩⟩),
    SparseCore.bigSep_erase' (Finset.mem_erase.mpr ⟨fun e => absurd (Prod.mk.inj e).2 (by decide), Finset.mem_erase.mpr ⟨fun e => absurd (Prod.mk.inj e).2 (by decide),
      Finset.mem_erase.mpr ⟨fun e => absurd (Prod.mk.inj e).2 (by decide),
      (mem_ownCells (g := c11 d L)).mpr ⟨rfl, by show (SemLoc.dma cc17_scratch7.sem : SemLoc sig).isScoped .scVector = true; decide⟩⟩⟩⟩)]

abbrev pV (L : grid17.Coords) : Proc τ := Proc.scVector (cV L) (jV L)

omit [FloatOps F] in
theorem ownBufs_V :
    (ownBufs (thr d L) : sProp 𝕄)
      = iprop((∃ f, (thr d L).loc cc17_scratch0 ↦{fullShare} f) ∗ (∃ f, (thr d L).loc cc17_scratch1 ↦{fullShare} f)
          ∗ (∃ f, (thr d L).loc cc17_scratch2 ↦{fullShare} f) ∗ (∃ f, (thr d L).loc cc17_scratch3 ↦{fullShare} f)
          ∗ bigSep (((((ownRefs (τ := τ) (pV L)).erase ((pV L).devRef cc17_scratch0)).erase ((pV L).devRef cc17_scratch1)).erase
              ((pV L).devRef cc17_scratch2)).erase ((pV L).devRef cc17_scratch3))
              fun b => iprop(∃ f, ((d, b) : Loc nD τ sig) ↦{fullShare} f)) := by
  unfold SparseCore.Cfg.ownBufs
  refine (SparseCore.bigSep_erase' (SparseCore.Cfg.mem_ownRefs_of_owner (p := pV L) (b := (pV L).devRef cc17_scratch0) rfl)).trans ?_
  rw [SparseCore.bigSep_erase' (Finset.mem_erase.mpr ⟨fun e => absurd (Proc.devRef_injective _ e) (show (cc17_scratch1 : Ref sig .scVector) ≠ cc17_scratch0 by decide),
      SparseCore.Cfg.mem_ownRefs_of_owner (p := pV L) (b := (pV L).devRef cc17_scratch1) rfl⟩),
    SparseCore.bigSep_erase' (Finset.mem_erase.mpr ⟨fun e => absurd (Proc.devRef_injective _ e) (show (cc17_scratch2 : Ref sig .scVector) ≠ cc17_scratch1 by decide),
      Finset.mem_erase.mpr ⟨fun e => absurd (Proc.devRef_injective _ e) (show (cc17_scratch2 : Ref sig .scVector) ≠ cc17_scratch0 by decide),
      SparseCore.Cfg.mem_ownRefs_of_owner (p := pV L) (b := (pV L).devRef cc17_scratch2) rfl⟩⟩),
    SparseCore.bigSep_erase' (Finset.mem_erase.mpr ⟨fun e => absurd (Proc.devRef_injective _ e) (show (cc17_scratch3 : Ref sig .scVector) ≠ cc17_scratch2 by decide),
      Finset.mem_erase.mpr ⟨fun e => absurd (Proc.devRef_injective _ e) (show (cc17_scratch3 : Ref sig .scVector) ≠ cc17_scratch1 by decide),
      Finset.mem_erase.mpr ⟨fun e => absurd (Proc.devRef_injective _ e) (show (cc17_scratch3 : Ref sig .scVector) ≠ cc17_scratch0 by decide),
      SparseCore.Cfg.mem_ownRefs_of_owner (p := pV L) (b := (pV L).devRef cc17_scratch3) rfl⟩⟩⟩)]

/-- The rest of the subcore's scoped storage, which the task does not touch. -/
def restR : sProp 𝕄 :=
  iprop((bigSep (((((ownRefs (τ := τ) (pV L)).erase ((pV L).devRef cc17_scratch0)).erase ((pV L).devRef cc17_scratch1)).erase
              ((pV L).devRef cc17_scratch2)).erase ((pV L).devRef cc17_scratch3))
              fun b => iprop(∃ f, ((d, b) : Loc nD τ sig) ↦{fullShare} f))
      ∗ bigSep (((((ownCells (thr d L)).erase (c8 d L)).erase (c9 d L)).erase (c10 d L)).erase (c11 d L)) fun g => semVal g 0)

theorem body_pre (hO : ∀ g, O g none = 0) :
    iprop(levAts (K (F := F)).L (K (F := F)).lev ∗ emp ∗ goRes d L fx ∗ ownBufs (thr d L) ∗ ownSems0 (thr d L) ∗ owes (thr d L) O W)
      ⊢ runPre d L O W fx (restR (F := F) d L) := by
  rw [ownSems0_V, ownBufs_V]
  unfold goRes runPre restR
  iintro ⟨#Hlv, -, ⟨HX, HOut⟩, ⟨H4, H5, H6, H7, Hbufs⟩, ⟨Hs8, Hs9, Hs10, Hs11, Hsems⟩, HO⟩
  ihave Hmw := ((K (F := F)).mayWaits_none (thr := thr d L) hO) $$ Hlv
  isplitr; · iexact Hmw
  isplitl [HO]; · iexact HO
  isplitl [HX]; · iexact HX
  isplitl [HOut]; · iexact HOut
  isplitl [H4]; · iexact H4
  isplitl [H5]; · iexact H5
  isplitl [H6]; · iexact H6
  isplitl [H7]; · iexact H7
  isplitl [Hs8]; · iexact Hs8
  isplitl [Hs9]; · iexact Hs9
  isplitl [Hs10]; · iexact Hs10
  isplitl [Hs11]; · iexact Hs11
  isplitl [Hbufs]; · iexact Hbufs
  iexact Hsems

theorem body_post :
    runPost d L O W fx (restR (F := F) d L)
      ⊢ iprop(tdRes d L fx ∗ ownBufs (thr d L) ∗ ownSems0 (thr d L) ∗ ∃ W', ⌜∀ p ∈ W', p ∈ W ∨ p.2 = none⌝ ∗ owes (thr d L) O W') := by
  rw [ownSems0_V, ownBufs_V]
  unfold tdRes runPost restR
  iintro ⟨HX, HOut, H4, H5, H6, H7, Hs8, Hs9, Hs10, Hs11, HW, Hbufs, Hsems⟩
  isplitl [HX HOut]
  · isplitl [HX]; · iexact HX
    iexact HOut
  isplitl [H4 H5 H6 H7 Hbufs]
  · isplitl [H4]; · iexact H4
    isplitl [H5]; · iexact H5
    isplitl [H6]; · iexact H6
    isplitl [H7]; · iexact H7
    iexact Hbufs
  isplitl [Hs8 Hs9 Hs10 Hs11 Hsems]
  · isplitl [Hs8]; · iexact Hs8
    isplitl [Hs9]; · iexact Hs9
    isplitl [Hs10]; · iexact Hs10
    isplitl [Hs11]; · iexact Hs11
    iexact Hsems
  iexact HW

/-- The task in the launch theorem's shape: from what the call hands the tile and the subcore's scoped storage to
    what the tile hands back and the storage again. -/
theorem tile_body (hF : (K (F := F)).Facts) (hO : ∀ g, O g none = 0) :
    iprop(levAts (K (F := F)).L (K (F := F)).lev ∗ emp ∗ goRes d L fx ∗ scopedBufs (thr d L) ∗ scopedSems0 (thr d L) ∗ owes (thr d L) O W)
      ⊢ wp frame (wpE (defs₀ (F := F)) 𝒱₀ (thr d L) none) Set.univ
          (cc17_sc_group L xtW (Memref.isWhole_whole _) oW (Memref.isWhole_whole _) a4 (Memref.isWhole_whole _) a5 (Memref.isWhole_whole _)
            a6 (Memref.isWhole_whole _) a7 (Memref.isWhole_whole _) cc17_scratch4 cc17_scratch5 cc17_scratch6 cc17_scratch7)
          fun _ => iprop(tdRes d L fx ∗ scopedBufs (thr d L) ∗ scopedSems0 (thr d L)
            ∗ ∃ W', ⌜∀ p ∈ W', p ∈ W ∨ p.2 = none⌝ ∗ owes (thr d L) O W') := by
  rw [(K (F := F)).scopedBufs_V hF d (cV L) (jV L), SparseCore.Cfg.scopedSems0_V (Val := Elt F) d (cV L) (jV L)]
  exact (body_pre d L O W fx hO).trans ((tile_run d L O W fx (restR (F := F) d L)).trans (wp_mono frame _ _ fun _ => body_post d L O W fx))

end Tile

end Cert.Proof.TileB17

end
-- ==== Proof.TileVal18.lean ====
/-
  What the staging buffers of one vector subcore hold while it copies a piece of 3200 consecutive elements of row 18 of
  the transposed argument into the flat result, read index by index. No program and no ownership here: only the contents.

  A transfer lands the piece in row 0 of an 8 × 3200 staging array (`InRow`: position (0, t) of that row holds element
  (0, pos + t) of the transposed argument, `pos` the piece's first column). A loop of 200 trips copies that row, 16 lanes
  per trip, into the first 3200 elements of a flat staging array of 25600: trip `j` reads the 1 × 16 window at columns
  [16 j, 16 j + 16) of row 0 and writes it, flattened, at elements [16 j, 16 j + 16). After `j` trips the first 16 j
  elements of the flat array are the first 16 j elements of the row (`Lanes`); a trip extends the prefix by 16
  (`lanes_step`: an element below 16 j is outside the window written and keeps its value, an element of the window reads
  the lane written there, which is the row's element at the same column). A second transfer writes the first 3200
  elements of the flat array to the piece of the result at the same `pos`; so every element of that piece of the result
  holds the element of row 18 of the transposed argument at its own position (`out_written`): the composite of the three
  index maps t ↦ (0, pos + t) ↦ (0, t) ↦ t ↦ pos + t is the identity on positions of the row.
-/
import proofs.«206869_g37898791420194_cont_8to1_b_558_20_alg».proof.Proof.TileK18Defs
import proofs.«206869_g37898791420194_cont_8to1_b_558_20_alg».proof.Proof.Spec
import Idealize.ShloMosaic.Lib.WritesUnit
import Idealize.ShloMosaic.Lib.ValueLayout

noncomputable section

namespace Cert.Proof.TileVal18

open Cert.Proof.TileK18 Cert.KernelIdeal Cert.KernelIdeal.Gen
open Idealize.ShloMosaic Idealize.ShloMosaic.ValueIdx

variable {F : FTy → Type} [FloatOps F]
variable (d : Dev nD) (L : grid18.Coords)
variable (fx : Buf (Elt F) ((Memref.whole main_v0_scv : Memref sig .scVector .hbm S22x1600000 .f32).view.loc (thr d L)))

abbrev rowRect : Rect S8x3200 := Rect.unit (s := S8x3200) ![0, 0] S1x3200.size inb_S8x3200_S1x3200_0_0

/-- row 0 of the staging array is piece n of the argument row -/
def InRow (a : Memref sig .scVector .vmem S8x3200 .f32) (ga : Buf (Elt F) (a.view.loc (thr d L))) (n : ℕ) : Prop :=
  ∀ y : S1x3200.Idx, a.view.read (Elt F) ga (rowRect.emb y) = (inM L n).view.read (Elt F) fx y

theorem inRow_fetch (a : Memref sig .scVector .vmem S8x3200 .f32) (gold : Buf (Elt F) (a.view.loc (thr d L)))
    (w : S1x3200.Idx → Elt F .f32) (n : ℕ) (hw : ∀ y, w y = (inM L n).view.read (Elt F) fx y) :
    InRow d L fx a (a.view.writes (Elt F) gold [⟨rowRect, w⟩]) n :=
  fun y => (View.read_writes_cons_emb a.view gold rowRect w [] y).trans (hw y)

def Lanes (a : Memref sig .scVector .vmem S8x3200 .f32) (b : Memref sig .scVector .vmem S25600 .f32)
    (ga : Buf (Elt F) (a.view.loc (thr d L))) (gb : Buf (Elt F) (b.view.loc (thr d L))) (j : ℕ) : Prop :=
  ∀ (r : ℕ) (hr : r < 3200), r < 16 * j →
    b.view.read (Elt F) gb (ix1 (⟨r, by omega⟩ : Fin 25600)) = a.view.read (Elt F) ga (ix2 (0 : Fin 8) (⟨r, hr⟩ : Fin 3200))

theorem lanes_zero (a : Memref sig .scVector .vmem S8x3200 .f32) (b : Memref sig .scVector .vmem S25600 .f32)
    (ga : Buf (Elt F) (a.view.loc (thr d L))) (gb : Buf (Elt F) (b.view.loc (thr d L))) : Lanes d L a b ga gb 0 := by
  intro r hr h; omega

/-- The 1 × 16 window at column `c` of the staging array, read at lane `t`, is element `(0, c + t)`. -/
theorem idx_window {off : Fin 2 → ℕ} {c : ℕ} (h : off = ![0, c]) (p : ∀ a', off a' + S1x16.size a' ≤ S8x3200.size a')
    (t : Fin 16) (hr : c + t.val < 3200) :
    (Rect.unit (s := S8x3200) off S1x16.size p).toLoadRect.idx (ix2 (0 : Fin 1) t) = ix2 (0 : Fin 8) (⟨c + t.val, hr⟩ : Fin 3200) := by
  subst h
  funext a'; apply Fin.ext
  rw [LoadRect.idx_apply]
  match a' with
  | ⟨0, _⟩ => show 0 + 1 * 0 = 0; omega
  | ⟨1, _⟩ => show c + 1 * t.val = c + t.val; omega

/-- One trip of a lane-copy loop, the offsets given by their closed forms. -/
theorem lanes_step_core (a : Memref sig .scVector .vmem S8x3200 .f32) (b : Memref sig .scVector .vmem S25600 .f32)
    (ga : Buf (Elt F) (a.view.loc (thr d L))) (gb : Buf (Elt F) (b.view.loc (thr d L)))
    (t : ℕ) {off3 : Fin 2 → ℕ} {off4 : Fin 1 → ℕ} (h3 : off3 = ![0, 16 * t]) (h4 : off4 = ![16 * t])
    (p3 : ∀ a', off3 a' + S1x16.size a' ≤ S8x3200.size a') (p4 : ∀ a', off4 a' + S16.size a' ≤ S25600.size a')
    (h : Lanes d L a b ga gb t) :
    Lanes d L a b ga (b.view.writes (Elt F) gb [⟨Rect.unit (s := S25600) off4 S16.size p4,
      shapeCast S16 (a.view.readAt (Elt F) (Rect.unit (s := S8x3200) off3 S1x16.size p3).toLoadRect ga) shapeCasts_S1x16_S16⟩]) (t + 1) := by
  intro r hr hlt
  by_cases hlo : r < 16 * t
  · refine (View.read_writes_cons_unit_of_not_mem b.view gb p4 _ [] _ h4 (0 : Fin 1) (Or.inl ?_)).trans (h r hr hlo)
    show r < 16 * t
    exact hlo
  · have hx : r - 16 * t < 16 := by omega
    refine (View.read_writes_cons_unit_of_mem b.view gb p4 _ [] _ (ix1 (⟨r - 16 * t, hx⟩ : Fin 16)) h4 ?_).trans ?_
    · intro a'
      match a' with
      | ⟨0, _⟩ => show r = 16 * t + (r - 16 * t); omega
    · rw [shapeCast_1a_a_apply, View.readAt_apply, idx_window h3 p3 ⟨r - 16 * t, hx⟩ (by show 16 * t + (r - 16 * t) < 3200; omega)]
      congr 2
      apply Fin.ext
      show 16 * t + (r - 16 * t) = r
      omega

theorem lanes_step (a : Memref sig .scVector .vmem S8x3200 .f32) (b : Memref sig .scVector .vmem S25600 .f32)
    (ga : Buf (Elt F) (a.view.loc (thr d L))) (gb : Buf (Elt F) (b.view.loc (thr d L)))
    (j : Fin k18_t2_loop.trips) (p3 : ∀ a', (k18_off3 j) a' + S1x16.size a' ≤ S8x3200.size a')
    (p4 : ∀ a', (k18_off4 j) a' + S16.size a' ≤ S25600.size a') (h : Lanes d L a b ga gb j.val) :
    Lanes d L a b ga (b.view.writes (Elt F) gb [⟨Rect.unit (s := S25600) (k18_off4 j) S16.size p4,
      k18_pay1 (a.view.readAt (Elt F) (Rect.unit (s := S8x3200) (k18_off3 j) S1x16.size p3).toLoadRect ga)⟩]) (j.val + 1) :=
  lanes_step_core d L a b ga gb j.val (k18_off3_eq j) (k18_off4_eq j) p3 p4 h

theorem lanes_step' (a : Memref sig .scVector .vmem S8x3200 .f32) (b : Memref sig .scVector .vmem S25600 .f32)
    (ga : Buf (Elt F) (a.view.loc (thr d L))) (gb : Buf (Elt F) (b.view.loc (thr d L)))
    (j : Fin k18_t3_loop.trips) (p3 : ∀ a', (k18_off8 j) a' + S1x16.size a' ≤ S8x3200.size a')
    (p4 : ∀ a', (k18_off9 j) a' + S16.size a' ≤ S25600.size a') (h : Lanes d L a b ga gb j.val) :
    Lanes d L a b ga (b.view.writes (Elt F) gb [⟨Rect.unit (s := S25600) (k18_off9 j) S16.size p4,
      k18_pay2 (a.view.readAt (Elt F) (Rect.unit (s := S8x3200) (k18_off8 j) S1x16.size p3).toLoadRect ga)⟩]) (j.val + 1) :=
  lanes_step_core d L a b ga gb j.val (k18_off8_eq j) (k18_off9_eq j) p3 p4 h

/-- Position `y` of the write-out window of the flat staging array is its element `y 0`. -/
theorem stg_emb (y : S3200.Idx) (hy : (y 0).val < 25600) :
    (Rect.unit (s := S25600) ![0] S3200.size inb_S25600_S3200_0).emb y = ix1 (⟨(y 0).val, hy⟩ : Fin 25600) := by
  funext a'; apply Fin.ext
  match a' with
  | ⟨0, _⟩ => show 0 + 1 * (y 0).val = (y 0).val; omega

/-- Position `(0, t)` of row 0 of the staging array is its element `(0, t)`. -/
theorem row_emb (t : Fin 3200) : rowRect.emb (ix2 (0 : Fin 1) t) = ix2 (0 : Fin 8) t := by
  funext a'; apply Fin.ext
  match a' with
  | ⟨0, _⟩ => show 0 + 1 * 0 = 0; omega
  | ⟨1, _⟩ => show 0 + 1 * t.val = t.val; omega

/-- Position `(0, t)` of piece `n` of the argument row is element `(0, pos + t)` of the transposed argument;
    position `y` of piece `n` of the result is element `pos + y 0` of the result. -/
theorem in_emb (n : ℕ) (t : Fin 3200) (h : pos L n + t.val < 1600000) :
    (inM L n).view.emb (ix2 (0 : Fin 1) t) = ix2 (18 : Fin 22) (⟨pos L n + t.val, h⟩ : Fin 1600000) := by
  funext a'; apply Fin.ext
  match a' with
  | ⟨0, _⟩ => show 18 + 1 * 0 = 18; omega
  | ⟨1, _⟩ => show pos L n + 1 * t.val = pos L n + t.val; omega

theorem out_emb (n : ℕ) (y : S3200.Idx) (h : pos L n + (y 0).val < 1600000) :
    (outM L n).view.emb y = ix1 (⟨pos L n + (y 0).val, h⟩ : Fin 1600000) := by
  funext a'; apply Fin.ext
  match a' with
  | ⟨0, _⟩ => show pos L n + 1 * (y 0).val = pos L n + (y 0).val; omega

/-- Both lane-copy loops run 200 trips: 200 · 16 = 3200, the whole row. -/
theorem trips2 : k18_t2_loop.trips = 200 := by decide
theorem trips3 : k18_t3_loop.trips = 200 := by decide

/-- After all its trips a lane-copy loop has copied the whole row. -/
theorem lanes_all (a : Memref sig .scVector .vmem S8x3200 .f32) (b : Memref sig .scVector .vmem S25600 .f32)
    (ga : Buf (Elt F) (a.view.loc (thr d L))) (gb : Buf (Elt F) (b.view.loc (thr d L)))
    (h : Lanes d L a b ga gb k18_t2_loop.trips) : Lanes d L a b ga gb 200 := trips2 ▸ h
theorem lanes_all' (a : Memref sig .scVector .vmem S8x3200 .f32) (b : Memref sig .scVector .vmem S25600 .f32)
    (ga : Buf (Elt F) (a.view.loc (thr d L))) (gb : Buf (Elt F) (b.view.loc (thr d L)))
    (h : Lanes d L a b ga gb k18_t3_loop.trips) : Lanes d L a b ga gb 200 := trips3 ▸ h

/-- The write-out of a piece: the first 3200 elements of the flat staging array, which the 200 lane copies filled from
    row 0 of the staging array, which the fetch filled from piece `n` of row 18 of the transposed argument, land at
    piece `n` of the result, at the same positions of the row. -/
theorem out_written (a : Memref sig .scVector .vmem S8x3200 .f32) (b : Memref sig .scVector .vmem S25600 .f32) (n : ℕ)
    (ga : Buf (Elt F) (a.view.loc (thr d L))) (gb : Buf (Elt F) (b.view.loc (thr d L)))
    (f0 : Buf (Elt F) ((outM L n).view.loc (thr d L))) (w : S3200.Idx → Elt F .f32)
    (hw : ∀ y, w y = (stg b).view.read (Elt F) gb y) (hl : Lanes d L a b ga gb 200) (hr : InRow d L fx a ga n) (hv : valid L n) :
    ∀ i ∈ (outM L n).view.set, ((outM L n).view.writes (Elt F) f0 [⟨Rect.whole _, w⟩]) i = Cert.Spec.row 18 fx i := by
  intro i hi
  obtain ⟨y, -, rfl⟩ := Finset.mem_map.mp hi
  have hy : (y 0).val < 3200 := (y 0).isLt
  have hp : pos L n + (y 0).val < 1600000 := by unfold pos; omega
  have e1 : (outM L n).view.writes (Elt F) f0 [⟨Rect.whole _, w⟩] ((outM L n).view.emb y) = w y := by
    have h := View.read_writes_cons_emb (outM L n).view f0 (Rect.whole _) w [] y
    rw [Rect.emb_whole_apply] at h
    exact (cast_eq _ _).symm.trans ((View.read_apply _ _).symm.trans h)
  have e2 : (stg b).view.read (Elt F) gb y = b.view.read (Elt F) gb (ix1 (⟨(y 0).val, by omega⟩ : Fin 25600)) :=
    congrArg (b.view.read (Elt F) gb) (stg_emb y (by omega))
  have e3 : a.view.read (Elt F) ga (ix2 (0 : Fin 8) (⟨(y 0).val, hy⟩ : Fin 3200))
      = (inM L n).view.read (Elt F) fx (ix2 (0 : Fin 1) (⟨(y 0).val, hy⟩ : Fin 3200)) :=
    (congrArg (a.view.read (Elt F) ga) (row_emb ⟨(y 0).val, hy⟩).symm).trans (hr _)
  have e4 : (inM L n).view.read (Elt F) fx (ix2 (0 : Fin 1) (⟨(y 0).val, hy⟩ : Fin 3200))
      = fx (ix2 (18 : Fin 22) (⟨pos L n + (y 0).val, hp⟩ : Fin 1600000)) :=
    ((View.read_apply _ _).trans (cast_eq _ _)).trans (congrArg fx (in_emb L n ⟨(y 0).val, hy⟩ hp))
  have e5 : Cert.Spec.row 18 fx ((outM L n).view.emb y) = fx (ix2 (18 : Fin 22) (⟨pos L n + (y 0).val, hp⟩ : Fin 1600000)) :=
    (congrArg (Cert.Spec.row 18 fx) (out_emb L n y hp)).trans (Cert.Spec.row_apply 18 fx _)
  exact e1.trans ((hw y).trans (e2.trans ((hl _ hy (by omega)).trans (e3.trans (e4.trans e5.symm)))))

end Cert.Proof.TileVal18

end
-- ==== Proof.TileK18.lean ====
/-
  One vector subcore's task of copy kernel 18 (counting from 0), run symbolically: the two fetch slots and two write-out slots
  between trips of the main loop (what each transfer in flight will hand back, and what the staging buffers hold), the
  invariant of the main loop and of the two lane-copy loops, and the task's run — from the tile's pieces of row 18 of
  the transposed argument and of the result to the same pieces with the result holding the row's elements.
-/
import proofs.«206869_g37898791420194_cont_8to1_b_558_20_alg».proof.Proof.TileK18Defs
import proofs.«206869_g37898791420194_cont_8to1_b_558_20_alg».proof.Proof.TileVal18
noncomputable section

namespace Cert.Proof.TileK18

open Cert.KernelIdeal Cert.KernelIdeal.Gen Cert.Proof.TileVal18
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 22) (Elt F) ℕ UU ℕ
local notation "xtW" => (Memref.whole Cert.KernelIdeal.main_v0_scv : Memref Cert.KernelIdeal.sig Kind.scVector Space.hbm Cert.KernelIdeal.S22x1600000 EltTy.f32)
local notation "oW" => (Memref.whole Cert.KernelIdeal.main_v19_scv : Memref Cert.KernelIdeal.sig Kind.scVector Space.hbm Cert.KernelIdeal.S1600000 EltTy.f32)
local notation "a4" => (Memref.whole Cert.KernelIdeal.cc18_scratch0 : Memref Cert.KernelIdeal.sig Kind.scVector Space.vmem Cert.KernelIdeal.S8x3200 EltTy.f32)
local notation "a5" => (Memref.whole Cert.KernelIdeal.cc18_scratch1 : Memref Cert.KernelIdeal.sig Kind.scVector Space.vmem Cert.KernelIdeal.S8x3200 EltTy.f32)
local notation "a6" => (Memref.whole Cert.KernelIdeal.cc18_scratch2 : Memref Cert.KernelIdeal.sig Kind.scVector Space.vmem Cert.KernelIdeal.S25600 EltTy.f32)
local notation "a7" => (Memref.whole Cert.KernelIdeal.cc18_scratch3 : Memref Cert.KernelIdeal.sig Kind.scVector Space.vmem Cert.KernelIdeal.S25600 EltTy.f32)

variable [FloatOps F]

section Tile

variable (d : Dev nD) (L : grid18.Coords)
variable (O : CellTallies nD τ sig (HIx 22)) (W : Waits sig (HIx 22))
variable (fx : Buf (Elt F) ((xtW).view.loc (thr d L)))

/-- Piece `n` of the result at its final contents. -/
abbrev oqPiece (n : ℕ) : sProp 𝕄 := (outM L n).view.loc (thr d L) ↦[(outM L n).view.set]{fullShare} (Cert.Spec.row 18 fx)
theorem oQ_pos {n : ℕ} (v : valid L n) : oQ d L fx n = oqPiece d L fx n := if_pos v
theorem oQ_neg {n : ℕ} (v : ¬ valid L n) : oQ d L fx n = iprop(emp) := if_neg v

/-- A fetch slot, remembering that the staging row it will hand back holds the piece. -/
def inSlotV (a : Memref sig .scVector .vmem S8x3200 .f32) (sm : DmaSem sig) (n : ℕ) : sProp 𝕄 :=
  if valid L n then
    iprop(∃ g, ⌜InRow d L fx a g n⌝ ∗ Transfers.Flight countersEmb (thr d L) (SemLoc.dma sm) (default : HIx 22) NN
      iprop((a.view.loc (thr d L) ↦{fullShare} g) ∗ xtPiece d L fx n))
  else iprop((∃ g, a.view.loc (thr d L) ↦{fullShare} g) ∗ semVal (thr d L, SemLoc.dma sm) 0)

/-- A write-out slot: the piece in flight will come back holding the row's elements. -/
def outSlotV (a : Memref sig .scVector .vmem S25600 .f32) (sm : DmaSem sig) (m : ℕ) : sProp 𝕄 :=
  if 2 ≤ m ∧ valid L (m - 2) then
    iprop(∃ g, Transfers.Flight countersEmb (thr d L) (SemLoc.dma sm) (default : HIx 22) NN
        iprop(oqPiece d L fx (m - 2) ∗ ((stg a).view.loc (thr d L) ↦[(stg a).view.set]{fullShare} g))
      ∗ (a.view.loc (thr d L) ↦[Finset.univ \ (stg a).view.set]{fullShare} g))
  else iprop((∃ g, a.view.loc (thr d L) ↦{fullShare} g) ∗ semVal (thr d L, SemLoc.dma sm) 0)

theorem inSlotV_pos {a : Memref sig .scVector .vmem S8x3200 .f32} {sm : DmaSem sig} {n : ℕ} (v : valid L n) :
    inSlotV d L fx a sm n = iprop(∃ g, ⌜InRow d L fx a g n⌝ ∗ Transfers.Flight countersEmb (thr d L) (SemLoc.dma sm) (default : HIx 22) NN
      iprop((a.view.loc (thr d L) ↦{fullShare} g) ∗ xtPiece d L fx n)) := by unfold inSlotV; rw [if_pos v]
theorem inSlotV_neg {a : Memref sig .scVector .vmem S8x3200 .f32} {sm : DmaSem sig} {n : ℕ} (v : ¬ valid L n) :
    inSlotV d L fx a sm n = iprop((∃ g, a.view.loc (thr d L) ↦{fullShare} g) ∗ semVal (thr d L, SemLoc.dma sm) 0) := by
  unfold inSlotV; rw [if_neg v]
theorem outSlotV_pos {a : Memref sig .scVector .vmem S25600 .f32} {sm : DmaSem sig} {m : ℕ} (h : 2 ≤ m ∧ valid L (m - 2)) :
    outSlotV d L fx a sm m = iprop(∃ g, Transfers.Flight countersEmb (thr d L) (SemLoc.dma sm) (default : HIx 22) NN
        iprop(oqPiece d L fx (m - 2) ∗ ((stg a).view.loc (thr d L) ↦[(stg a).view.set]{fullShare} g))
      ∗ (a.view.loc (thr d L) ↦[Finset.univ \ (stg a).view.set]{fullShare} g)) := by unfold outSlotV; rw [if_pos h]
theorem outSlotV_neg {a : Memref sig .scVector .vmem S25600 .f32} {sm : DmaSem sig} {m : ℕ} (h : ¬ (2 ≤ m ∧ valid L (m - 2))) :
    outSlotV d L fx a sm m = iprop((∃ g, a.view.loc (thr d L) ↦{fullShare} g) ∗ semVal (thr d L, SemLoc.dma sm) 0) := by
  unfold outSlotV; rw [if_neg h]

/-- A fetch just issued: the staging row will hold what the transfer reads, which is the piece. -/
theorem fl_inV {off : Fin 2 → ℕ} {n : ℕ} (h : off = ![18, pos L n]) (p : ∀ a, off a + S1x3200.size a ≤ S22x1600000.size a) (v : valid L n)
    (a : Memref sig .scVector .vmem S8x3200 .f32) (sm : DmaSem sig) :
    (iprop(∃ (gold : Buf (Elt F) (a.view.loc (thr d L))) (w : S1x3200.Idx → Elt F .f32),
        ⌜∀ y, w y = ((xtW).slice (Rect.unit (s := S22x1600000) off S1x3200.size p) (fun _ => rfl)).view.read (Elt F) fx y⌝
        ∗ Transfers.Flight countersEmb (thr d L) (SemLoc.dma sm) (default : HIx 22) NN
          iprop((a.view.loc (thr d L) ↦{fullShare} a.view.writes (Elt F) gold [⟨rowRect, w⟩])
            ∗ (((xtW).slice (Rect.unit (s := S22x1600000) off S1x3200.size p) (fun _ => rfl)).view.loc (thr d L)
                ↦[((xtW).slice (Rect.unit (s := S22x1600000) off S1x3200.size p) (fun _ => rfl)).view.set]{fullShare} fx))) : sProp 𝕄)
      ⊢ inSlotV d L fx a sm n := by
  subst h
  rw [inSlotV_pos d L fx v]
  iintro ⟨%gold, %w, %hw, H⟩
  iexists _
  isplitr
  · ipureintro; exact inRow_fetch d L fx a gold w n hw
  · iexact H

set_option maxHeartbeats 4000000 in
/-- A write-out just issued from a flat staging buffer whose first 3200 elements are the staging row, itself piece
    `n` of the argument row: the piece of the result will hold the row's elements. -/
theorem fl_outV {off : Fin 1 → ℕ} {n : ℕ} (h : off = ![pos L n]) (p : ∀ a, off a + S3200.size a ≤ S1600000.size a) (v : valid L n)
    (ar : Memref sig .scVector .vmem S8x3200 .f32) (a : Memref sig .scVector .vmem S25600 .f32) (sm : DmaSem sig)
    (f0 : Buf (Elt F) ((oW).view.loc (thr d L))) (ga : Buf (Elt F) (ar.view.loc (thr d L))) (gb : Buf (Elt F) (a.view.loc (thr d L)))
    (hl : Lanes d L ar a ga gb 200) (hr : InRow d L fx ar ga n) :
    (iprop(∃ (w : S3200.Idx → Elt F .f32),
        ⌜∀ y, w y = (stg a).view.read (Elt F) gb y⌝
        ∗ Transfers.Flight countersEmb (thr d L) (SemLoc.dma sm) (default : HIx 22) NN
          iprop((((oW).slice (Rect.unit (s := S1600000) off S3200.size p) (fun _ => rfl)).view.loc (thr d L)
                ↦[((oW).slice (Rect.unit (s := S1600000) off S3200.size p) (fun _ => rfl)).view.set]{fullShare}
                  (((oW).slice (Rect.unit (s := S1600000) off S3200.size p) (fun _ => rfl)).view.writes (Elt F) f0 [⟨Rect.whole _, w⟩]))
            ∗ ((stg a).view.loc (thr d L) ↦[(stg a).view.set]{fullShare} gb))
        ∗ (a.view.loc (thr d L) ↦[Finset.univ \ (stg a).view.set]{fullShare} gb)) : sProp 𝕄)
      ⊢ outSlotV d L fx a sm (n + 2) := by
  subst h
  rw [outSlotV_pos d L fx (m := n + 2) ⟨by omega, by simpa using v⟩]
  iintro ⟨%w, %hw, H, R⟩
  have hD : (iprop(((outM L n).view.loc (thr d L) ↦[(outM L n).view.set]{fullShare} ((outM L n).view.writes (Elt F) f0 [⟨Rect.whole _, w⟩]))
          ∗ ((stg a).view.loc (thr d L) ↦[(stg a).view.set]{fullShare} gb)) : sProp 𝕄)
      ⊢ iprop(oqPiece d L fx (n + 2 - 2) ∗ ((stg a).view.loc (thr d L) ↦[(stg a).view.set]{fullShare} gb)) := by
    rw [Nat.add_sub_cancel]
    have e : (((outM L n).view.loc (thr d L) ↦[(outM L n).view.set]{fullShare} ((outM L n).view.writes (Elt F) f0 [⟨Rect.whole _, w⟩])) : sProp 𝕄)
        = oqPiece d L fx n := pointsTo_congr (out_written d L fx ar a n ga gb f0 w hw hl hr v)
    iintro ⟨H1, H2⟩
    isplitl [H1]
    · iapply (Entails.of_eq e); iexact H1
    · iexact H2
  iexists gb
  isplitl [H]
  · iapply (Transfers.Flight_mono countersEmb (thr d L) hD); iexact H
  · iexact R

/-- The result pieces outside the slots before trip `t`: those already written hold the row, the others some contents. -/
def oMix (t n : ℕ) : sProp 𝕄 := if n + 2 < 2 * t then oQ d L fx n else oP (F := F) d L n
theorem oMix_lt {t n : ℕ} (h : n + 2 < 2 * t) : oMix d L fx t n = oQ d L fx n := if_pos h
theorem oMix_ge {t n : ℕ} (h : ¬ n + 2 < 2 * t) : oMix d L fx t n = oP (F := F) d L n := if_neg h
theorem oMix_core (k : ℕ) : bigSep (oCore k) (oMix d L fx k) = bigSep (oCore k) (oMix d L fx (k + 1)) :=
  bigSep_congr fun n hn => by
    have hn' : n + 2 ≠ 2 * k ∧ n + 2 ≠ 2 * k + 1 ∧ n ≠ 2 * k ∧ n ≠ 2 * k + 1 := by
      simp only [oCore, Finset.mem_filter, Finset.mem_range] at hn; exact hn.2
    by_cases h : n + 2 < 2 * k
    · rw [oMix_lt d L fx h, oMix_lt d L fx (by omega)]
    · rw [oMix_ge d L fx h, oMix_ge d L fx (by omega)]
theorem oMix_zero : bigSep (oSet 0) (oMix d L fx 0) = bigSep (Finset.range 18) (oP (F := F) d L) := by
  rw [oSet_zero]; exact bigSep_congr fun n _ => oMix_ge d L fx (by omega)
theorem oMix_end : bigSep (oSet 8) (oMix d L fx 8) = bigSep (oSet 8) (oQ d L fx) :=
  bigSep_congr fun n hn => by
    have hn' : n < 18 ∧ n + 2 ≠ 16 ∧ n + 2 ≠ 17 := by simpa only [oSet, Finset.mem_filter, Finset.mem_range] using hn
    by_cases h : n + 2 < 2 * 8
    · exact oMix_lt d L fx h
    · rw [oMix_ge d L fx h, oP_neg (F := F) d L (by unfold valid; omega), oQ_neg d L fx (by unfold valid; omega)]

/-- The lane-copy loops: before trip `j` the first 16·j elements of the flat staging buffer are the staging row's. -/
def laneV0 (g4 : Buf (Elt F) ((a4).view.loc (thr d L))) (j : ℕ) (_ : PUnit) : sProp 𝕄 :=
  iprop(((a4).view.loc (thr d L) ↦{fullShare} g4) ∗ (∃ g, ((a6).view.loc (thr d L) ↦{fullShare} g) ∗ ⌜Lanes d L a4 a6 g4 g j⌝))
def laneV1 (g5 : Buf (Elt F) ((a5).view.loc (thr d L))) (j : ℕ) (_ : PUnit) : sProp 𝕄 :=
  iprop(((a5).view.loc (thr d L) ↦{fullShare} g5) ∗ (∃ g, ((a7).view.loc (thr d L) ↦{fullShare} g) ∗ ⌜Lanes d L a5 a7 g5 g j⌝))

def invV (t : ℕ) (_ : PUnit) : sProp 𝕄 :=
  iprop(Transfers.MayWaits (thr d L) (none : HIx 22) O
    ∗ (∃ W', ⌜∀ p ∈ W', p ∈ W ∨ p.2 = none⌝ ∗ owes (thr d L) O W')
    ∗ bigSep (xSet t) (xP d L fx) ∗ bigSep (oSet t) (oMix d L fx t)
    ∗ inSlotV d L fx a4 cc18_scratch4.sem (2 * t) ∗ outSlotV d L fx a6 cc18_scratch6.sem (2 * t)
    ∗ inSlotV d L fx a5 cc18_scratch5.sem (2 * t + 1) ∗ outSlotV d L fx a7 cc18_scratch7.sem (2 * t + 1))

/-- After the last trip nothing of the argument row is in a slot: the tile holds all its pieces. -/
theorem xRange_end : bigSep (xSet 8) (xP d L fx) ⊢ bigSep (Finset.range 18) (xP d L fx) := by
  rw [two_out (s := Finset.range 18) (a := 16) (b := 17) (by decide) (by decide) (by decide),
    show ((Finset.range 18).erase 16).erase 17 = xSet 8 by decide]
  iintro H
  isplitr; · iapply (Entails.of_eq (xP_neg d L fx (n := 16) (by unfold valid; omega)).symm); iempintro
  isplitr; · iapply (Entails.of_eq (xP_neg d L fx (n := 17) (by unfold valid; omega)).symm); iempintro
  iexact H
omit [FloatOps F] in
theorem oRange_end (Φ : ℕ → sProp 𝕄) : bigSep (Finset.range 18) Φ = iprop(Φ 14 ∗ Φ 15 ∗ bigSep (oSet 8) Φ) := by
  rw [two_out (s := Finset.range 18) (a := 14) (b := 15) (by decide) (by decide) (by decide),
    show ((Finset.range 18).erase 14).erase 15 = oSet 8 by decide]

/-- What the run starts from and ends with, beside an untouched rest `R`. -/
def runPre (R : sProp 𝕄) : sProp 𝕄 :=
    iprop(Transfers.MayWaits (thr d L) (none : HIx 22) O ∗ owes (thr d L) O W
        ∗ bigSep (Finset.range 18) (xP d L fx) ∗ bigSep (Finset.range 18) (oP (F := F) d L)
        ∗ (∃ g, (a4).view.loc (thr d L) ↦{fullShare} g) ∗ (∃ g, (a5).view.loc (thr d L) ↦{fullShare} g)
        ∗ (∃ g, (a6).view.loc (thr d L) ↦{fullShare} g) ∗ (∃ g, (a7).view.loc (thr d L) ↦{fullShare} g)
        ∗ semVal (thr d L, SemLoc.dma cc18_scratch4.sem) 0 ∗ semVal (thr d L, SemLoc.dma cc18_scratch5.sem) 0
        ∗ semVal (thr d L, SemLoc.dma cc18_scratch6.sem) 0 ∗ semVal (thr d L, SemLoc.dma cc18_scratch7.sem) 0 ∗ R)
def runPost (R : sProp 𝕄) : sProp 𝕄 :=
    iprop(bigSep (Finset.range 18) (xP d L fx) ∗ bigSep (Finset.range 18) (oQ d L fx)
            ∗ (∃ g, (a4).view.loc (thr d L) ↦{fullShare} g) ∗ (∃ g, (a5).view.loc (thr d L) ↦{fullShare} g)
            ∗ (∃ g, (a6).view.loc (thr d L) ↦{fullShare} g) ∗ (∃ g, (a7).view.loc (thr d L) ↦{fullShare} g)
            ∗ semVal (thr d L, SemLoc.dma cc18_scratch4.sem) 0 ∗ semVal (thr d L, SemLoc.dma cc18_scratch5.sem) 0
            ∗ semVal (thr d L, SemLoc.dma cc18_scratch6.sem) 0 ∗ semVal (thr d L, SemLoc.dma cc18_scratch7.sem) 0
            ∗ (∃ W', ⌜∀ p ∈ W', p ∈ W ∨ p.2 = none⌝ ∗ owes (thr d L) O W') ∗ R)

set_option maxHeartbeats 16000000 in
/-- The task's run: from its pieces of the argument row and of the result, the four staging buffers and the four
    semaphores at zero, to the same with every piece of the result holding the row's elements. -/
theorem tile_run (R : sProp 𝕄) :
    runPre d L O W fx R
      ⊢ wp frame (wpE (defs₀ (F := F)) 𝒱₀ (thr d L) none) Set.univ
          (cc18_sc_group L xtW (Memref.isWhole_whole _) oW (Memref.isWhole_whole _) a4 (Memref.isWhole_whole _) a5 (Memref.isWhole_whole _)
            a6 (Memref.isWhole_whole _) a7 (Memref.isWhole_whole _) cc18_scratch4 cc18_scratch5 cc18_scratch6 cc18_scratch7)
          fun _ => runPost d L O W fx R := by
  unfold runPre runPost
  have v0 : valid L 0 := Or.inl (by omega)
  have v1 : valid L 1 := Or.inl (by omega)
  have k18_h7 : k18_cond7 L = 1#1 := cond7_iff L
  iintro ⟨#Hmw, HO, HX, HOut, ⟨%g4, H4⟩, ⟨%g5, H5⟩, ⟨%g6, H6⟩, ⟨%g7, H7⟩, Hs8, Hs9, Hs10, Hs11, HR⟩
  ihave HX := (Entails.of_eq (xRange_split d L fx v0 v1)) $$ HX
  icases HX with ⟨X0, X1, HX⟩
  ihave X0 := (Entails.of_eq (in_congr d L (off_in0 L v0).symm (in_inb L _) (k18_off1_inb L 0) fx)) $$ X0
  ihave X1 := (Entails.of_eq (in_congr d L (off_in1 L v1).symm (in_inb L _) (k18_off1_inb L 1) fx)) $$ X1
  sl_unfold [cc18_sc_group]
  sl_exec
  ihave S8 := (fl_inV d L fx (off_in0 L v0) (k18_off1_inb L 0) v0 a4 cc18_scratch4.sem) $$ [Hs8]
  · iexists _, _
    isplitr
    rotate_left
    · iexact Hs8
    ipureintro; intro y; rfl
  ihave S9 := (fl_inV d L fx (off_in1 L v1) (k18_off1_inb L 1) v1 a5 cc18_scratch5.sem) $$ [Hs9]
  · iexists _, _
    isplitr
    rotate_left
    · iexact Hs9
    ipureintro; intro y; rfl
  sl_for (invV d L O W fx) $$ [HO HX HOut S8 S9 H6 H7 Hs10 Hs11]
  case region =>
    intro (k : Fin k18_t1_loop.trips) acc
    have hk : k.val < 8 := Nat.lt_of_lt_of_eq k.isLt trips1
    unfold invV
    iintro ⟨#Hmw, ⟨%W', %hW', HO⟩, HX, HOut, S8, S10, S9, S11⟩
    by_cases hk1 : 1 ≤ k.val
    · by_cases v3 : valid L (2 * k.val + 3)
      · -- the generic trip: both drains, both pieces worked, both next fetches issued
        have hk6 : k.val ≤ 6 := by unfold valid at v3; omega
        have k18_h1 : k18_cond1 k = 1#1 := (cond1_iff k).mpr (by omega)
        have k18_h2 : k18_cond2 L k = 1#1 := cond2_iff L k
        have k18_h3 : k18_cond3 L k = 1#1 := (cond3_iff L k).mpr (by omega)
        have k18_h4 : k18_cond4 k = 1#1 := (cond4_iff k).mpr (by omega)
        have k18_h5 : k18_cond5 L k = 1#1 := (cond5_iff L k).mpr (by first | (unfold valid big at *; omega) | (unfold big at *; omega) | omega)
        have k18_h6 : k18_cond6 L k = 1#1 := (cond6_iff L k).mpr (by first | (unfold valid big at *; omega) | (unfold big at *; omega) | omega)
        have v0 : valid L (2 * k.val) := by unfold valid big at *; omega
        have v1 : valid L (2 * k.val + 1) := by unfold valid big at *; omega
        have v2 : valid L (2 * k.val + 2) := by unfold valid big at *; omega
        have v3' : valid L (2 * k.val + 3) := by unfold valid big at *; omega
        have hm0 : 2 ≤ 2 * k.val ∧ valid L (2 * k.val - 2) := ⟨by omega, by unfold valid big at *; omega⟩
        have hm1 : 2 ≤ 2 * k.val + 1 ∧ valid L (2 * k.val + 1 - 2) := ⟨by omega, by unfold valid big at *; omega⟩
        ihave S8 := (Entails.of_eq (inSlotV_pos d L fx v0)) $$ S8
        icases S8 with ⟨%g4, %hin4, F8⟩
        ihave S9 := (Entails.of_eq (inSlotV_pos d L fx v1)) $$ S9
        icases S9 with ⟨%g5, %hin5, F9⟩
        ihave S10 := (Entails.of_eq (outSlotV_pos d L fx hm0)) $$ S10
        icases S10 with ⟨%g6, F10, R6⟩
        ihave S11 := (Entails.of_eq (outSlotV_pos d L fx hm1)) $$ S11
        icases S11 with ⟨%g7, F11, R7⟩
        ihave HX := (Entails.of_eq (xSet_out (xP d L fx) k.val hk)) $$ HX
        icases HX with ⟨X2, X3, HX⟩
        ihave X2 := (Entails.of_eq (xP_pos d L fx v2)) $$ X2
        ihave X2 := (Entails.of_eq (in_congr d L (off_6 L k v2).symm (in_inb L _) (k18_off6_inb L k k18_h3) fx)) $$ X2
        ihave X3 := (Entails.of_eq (xP_pos d L fx v3')) $$ X3
        ihave X3 := (Entails.of_eq (in_congr d L (off_11 L k v3').symm (in_inb L _) (k18_off11_inb L k k18_h6) fx)) $$ X3
        ihave HOut := (Entails.of_eq (oSet_out (oMix d L fx k.val) k.val hk)) $$ HOut
        icases HOut with ⟨Y0, Y1, HOut⟩
        ihave Y0 := (Entails.of_eq ((oMix_ge d L fx (t := k.val) (n := 2 * k.val) (by omega)).trans (oP_pos (F := F) d L v0))) $$ Y0
        icases Y0 with ⟨%f0, Y0⟩
        ihave Y0 := (Entails.of_eq (out_congr d L (off_5 L k v0).symm (out_inb L _) (k18_off5_inb L k k18_h2) f0)) $$ Y0
        ihave Y1 := (Entails.of_eq ((oMix_ge d L fx (t := k.val) (n := 2 * k.val + 1) (by omega)).trans (oP_pos (F := F) d L v1))) $$ Y1
        icases Y1 with ⟨%f1, Y1⟩
        ihave Y1 := (Entails.of_eq (out_congr d L (off_10 L k v1).symm (out_inb L _) (k18_off10_inb L k k18_h5) f1)) $$ Y1
        sl_exec
        sl_for (laneV0 d L g4) $$ [F8_dst R6]
        case region =>
          intro (j : Fin k18_t2_loop.trips) _
          unfold laneV0
          iintro ⟨HA, %g, HB, %hl⟩
          sl_exec
          sl_step
          isplitl [HA]; · iexact HA
          iexists _; isplitl [HB]; · iexact HB
          ipureintro; exact lanes_step d L a4 a6 g4 g j _ _ hl
        · unfold laneV0
          isplitl [F8_dst]; · iexact F8_dst
          iexists _; isplitl [R6]; · iexact R6
          ipureintro; exact lanes_zero d L a4 a6 g4 _
        iintro %_ HI
        unfold laneV0
        icases HI with ⟨H4, %g6', H6, %hl6⟩
        have hl6 : Lanes d L a4 a6 g4 g6' 200 := Eq.mp (congrArg (Lanes d L a4 a6 g4 g6') trips2) hl6
        sl_exec
        sl_for (laneV1 d L g5) $$ [F9_dst R7]
        case region =>
          intro (j : Fin k18_t3_loop.trips) _
          unfold laneV1
          iintro ⟨HA, %g, HB, %hl⟩
          sl_exec
          sl_step
          isplitl [HA]; · iexact HA
          iexists _; isplitl [HB]; · iexact HB
          ipureintro; exact lanes_step' d L a5 a7 g5 g j _ _ hl
        · unfold laneV1
          isplitl [F9_dst]; · iexact F9_dst
          iexists _; isplitl [R7]; · iexact R7
          ipureintro; exact lanes_zero d L a5 a7 g5 _
        iintro %_ HI
        unfold laneV1
        icases HI with ⟨H5, %g7', H7, %hl7⟩
        have hl7 : Lanes d L a5 a7 g5 g7' 200 := Eq.mp (congrArg (Lanes d L a5 a7 g5 g7') trips3) hl7
        sl_exec
        sl_step
        isplitr; · iexact Hmw
        isplitl [HO]
        · iexists _; isplitr
          rotate_left
          · iexact HO
          ipureintro; intro p hp
          rcases Finset.mem_insert.mp hp with rfl | hp
          · exact .inr rfl
          rcases Finset.mem_insert.mp hp with rfl | hp
          · exact .inr rfl
          rcases Finset.mem_insert.mp hp with rfl | hp
          · exact .inr rfl
          rcases Finset.mem_insert.mp hp with rfl | hp
          · exact .inr rfl
          exact hW' p hp
        isplitl [HX F8_src F9_src]
        · iapply (Entails.of_eq (xSet_in (xP d L fx) k.val hk).symm)
          isplitl [F8_src]; · iapply (Entails.of_eq (xP_pos d L fx v0).symm); iexact F8_src
          isplitl [F9_src]; · iapply (Entails.of_eq (xP_pos d L fx v1).symm); iexact F9_src
          iexact HX
        isplitl [HOut F10_dst F11_dst]
        · iapply (Entails.of_eq (oSet_in (oMix d L fx (k.val + 1)) k.val hk (by omega)).symm)
          isplitl [F10_dst]; · iapply (Entails.of_eq ((oMix_lt d L fx (t := k.val + 1) (n := 2 * k.val - 2) (by omega)).trans (oQ_pos d L fx hm0.2)).symm); iexact F10_dst
          isplitl [F11_dst]
          · iapply (Entails.of_eq ((oMix_lt d L fx (t := k.val + 1) (n := 2 * k.val - 1) (by omega)).trans (oQ_pos d L fx (n := 2 * k.val - 1) (by have := hm1.2; rwa [show 2 * k.val + 1 - 2 = 2 * k.val - 1 by omega] at this))).symm)
            iapply (Entails.of_eq (congrArg (oqPiece d L fx) (show 2 * k.val + 1 - 2 = 2 * k.val - 1 by omega))); iexact F11_dst
          iapply (Entails.of_eq (oMix_core d L fx k.val)); iexact HOut
        isplitl [F8]
        · iapply (Entails.of_eq (congrArg (inSlotV d L fx a4 cc18_scratch4.sem) (show 2 * k.val + 2 = 2 * (k.val + 1) by ring)))
          iapply (fl_inV d L fx (off_6 L k v2) (k18_off6_inb L k k18_h3) v2 a4 cc18_scratch4.sem); iexists _, _
          isplitr
          rotate_left
          · iexact F8
          ipureintro; intro y; rfl
        isplitl [F10 H6]
        · iapply (Entails.of_eq (congrArg (outSlotV d L fx a6 cc18_scratch6.sem) (show 2 * k.val + 2 = 2 * (k.val + 1) by ring)))
          iapply (fl_outV d L fx (off_5 L k v0) (k18_off5_inb L k k18_h2) v0 a4 a6 cc18_scratch6.sem f0 g4 g6' hl6 hin4); iexists _
          isplitr
          rotate_left
          · isplitl [F10]; · iexact F10
            iexact H6
          ipureintro; intro y; rfl
        isplitl [F9]
        · iapply (Entails.of_eq (congrArg (inSlotV d L fx a5 cc18_scratch5.sem) (show 2 * k.val + 3 = 2 * (k.val + 1) + 1 by ring)))
          iapply (fl_inV d L fx (off_11 L k v3') (k18_off11_inb L k k18_h6) v3' a5 cc18_scratch5.sem); iexists _, _
          isplitr
          rotate_left
          · iexact F9
          ipureintro; intro y; rfl
        · iapply (Entails.of_eq (congrArg (outSlotV d L fx a7 cc18_scratch7.sem) (show 2 * k.val + 1 + 2 = 2 * (k.val + 1) + 1 by ring)))
          iapply (fl_outV d L fx (off_10 L k v1) (k18_off10_inb L k k18_h5) v1 a5 a7 cc18_scratch7.sem f1 g5 g7' hl7 hin5); iexists _
          isplitr
          rotate_left
          · isplitl [F11]; · iexact F11
            iexact H7
          ipureintro; intro y; rfl
      · by_cases h6 : k.val = 6
        · have hb : ¬ big L := fun hb => v3 (Or.inr ⟨by omega, hb⟩)
          -- trip 6 of a tile with fifteen pieces: no sixteenth piece to fetch
          have k18_h1 : k18_cond1 k = 1#1 := (cond1_iff k).mpr (by omega)
          have k18_h2 : k18_cond2 L k = 1#1 := cond2_iff L k
          have k18_h3 : k18_cond3 L k = 1#1 := (cond3_iff L k).mpr (by omega)
          have k18_h4 : k18_cond4 k = 1#1 := (cond4_iff k).mpr (by omega)
          have k18_h5 : k18_cond5 L k = 1#1 := (cond5_iff L k).mpr (by first | (unfold valid big at *; omega) | (unfold big at *; omega) | omega)
          have k18_h6 : ¬ k18_cond6 L k = 1#1 := fun h => absurd ((cond6_iff L k).mp h) (by first | (unfold valid big at *; omega) | (unfold big at *; omega) | omega)
          have v0 : valid L (2 * k.val) := by unfold valid big at *; omega
          have v1 : valid L (2 * k.val + 1) := by unfold valid big at *; omega
          have v2 : valid L (2 * k.val + 2) := by unfold valid big at *; omega
          have v3' : ¬ valid L (2 * k.val + 3) := by unfold valid big at *; omega
          have hm0 : 2 ≤ 2 * k.val ∧ valid L (2 * k.val - 2) := ⟨by omega, by unfold valid big at *; omega⟩
          have hm1 : 2 ≤ 2 * k.val + 1 ∧ valid L (2 * k.val + 1 - 2) := ⟨by omega, by unfold valid big at *; omega⟩
          ihave S8 := (Entails.of_eq (inSlotV_pos d L fx v0)) $$ S8
          icases S8 with ⟨%g4, %hin4, F8⟩
          ihave S9 := (Entails.of_eq (inSlotV_pos d L fx v1)) $$ S9
          icases S9 with ⟨%g5, %hin5, F9⟩
          ihave S10 := (Entails.of_eq (outSlotV_pos d L fx hm0)) $$ S10
          icases S10 with ⟨%g6, F10, R6⟩
          ihave S11 := (Entails.of_eq (outSlotV_pos d L fx hm1)) $$ S11
          icases S11 with ⟨%g7, F11, R7⟩
          ihave HX := (Entails.of_eq (xSet_out (xP d L fx) k.val hk)) $$ HX
          icases HX with ⟨X2, -, HX⟩
          ihave X2 := (Entails.of_eq (xP_pos d L fx v2)) $$ X2
          ihave X2 := (Entails.of_eq (in_congr d L (off_6 L k v2).symm (in_inb L _) (k18_off6_inb L k k18_h3) fx)) $$ X2
          ihave HOut := (Entails.of_eq (oSet_out (oMix d L fx k.val) k.val hk)) $$ HOut
          icases HOut with ⟨Y0, Y1, HOut⟩
          ihave Y0 := (Entails.of_eq ((oMix_ge d L fx (t := k.val) (n := 2 * k.val) (by omega)).trans (oP_pos (F := F) d L v0))) $$ Y0
          icases Y0 with ⟨%f0, Y0⟩
          ihave Y0 := (Entails.of_eq (out_congr d L (off_5 L k v0).symm (out_inb L _) (k18_off5_inb L k k18_h2) f0)) $$ Y0
          ihave Y1 := (Entails.of_eq ((oMix_ge d L fx (t := k.val) (n := 2 * k.val + 1) (by omega)).trans (oP_pos (F := F) d L v1))) $$ Y1
          icases Y1 with ⟨%f1, Y1⟩
          ihave Y1 := (Entails.of_eq (out_congr d L (off_10 L k v1).symm (out_inb L _) (k18_off10_inb L k k18_h5) f1)) $$ Y1
          sl_exec
          sl_for (laneV0 d L g4) $$ [F8_dst R6]
          case region =>
            intro (j : Fin k18_t2_loop.trips) _
            unfold laneV0
            iintro ⟨HA, %g, HB, %hl⟩
            sl_exec
            sl_step
            isplitl [HA]; · iexact HA
            iexists _; isplitl [HB]; · iexact HB
            ipureintro; exact lanes_step d L a4 a6 g4 g j _ _ hl
          · unfold laneV0
            isplitl [F8_dst]; · iexact F8_dst
            iexists _; isplitl [R6]; · iexact R6
            ipureintro; exact lanes_zero d L a4 a6 g4 _
          iintro %_ HI
          unfold laneV0
          icases HI with ⟨H4, %g6', H6, %hl6⟩
          have hl6 : Lanes d L a4 a6 g4 g6' 200 := Eq.mp (congrArg (Lanes d L a4 a6 g4 g6') trips2) hl6
          sl_exec
          sl_for (laneV1 d L g5) $$ [F9_dst R7]
          case region =>
            intro (j : Fin k18_t3_loop.trips) _
            unfold laneV1
            iintro ⟨HA, %g, HB, %hl⟩
            sl_exec
            sl_step
            isplitl [HA]; · iexact HA
            iexists _; isplitl [HB]; · iexact HB
            ipureintro; exact lanes_step' d L a5 a7 g5 g j _ _ hl
          · unfold laneV1
            isplitl [F9_dst]; · iexact F9_dst
            iexists _; isplitl [R7]; · iexact R7
            ipureintro; exact lanes_zero d L a5 a7 g5 _
          iintro %_ HI
          unfold laneV1
          icases HI with ⟨H5, %g7', H7, %hl7⟩
          have hl7 : Lanes d L a5 a7 g5 g7' 200 := Eq.mp (congrArg (Lanes d L a5 a7 g5 g7') trips3) hl7
          sl_exec
          sl_step
          isplitr; · iexact Hmw
          isplitl [HO]
          · iexists _; isplitr
            rotate_left
            · iexact HO
            ipureintro; intro p hp
            rcases Finset.mem_insert.mp hp with rfl | hp
            · exact .inr rfl
            rcases Finset.mem_insert.mp hp with rfl | hp
            · exact .inr rfl
            rcases Finset.mem_insert.mp hp with rfl | hp
            · exact .inr rfl
            rcases Finset.mem_insert.mp hp with rfl | hp
            · exact .inr rfl
            exact hW' p hp
          isplitl [HX F8_src F9_src]
          · iapply (Entails.of_eq (xSet_in (xP d L fx) k.val hk).symm)
            isplitl [F8_src]; · iapply (Entails.of_eq (xP_pos d L fx v0).symm); iexact F8_src
            isplitl [F9_src]; · iapply (Entails.of_eq (xP_pos d L fx v1).symm); iexact F9_src
            iexact HX
          isplitl [HOut F10_dst F11_dst]
          · iapply (Entails.of_eq (oSet_in (oMix d L fx (k.val + 1)) k.val hk (by omega)).symm)
            isplitl [F10_dst]; · iapply (Entails.of_eq ((oMix_lt d L fx (t := k.val + 1) (n := 2 * k.val - 2) (by omega)).trans (oQ_pos d L fx hm0.2)).symm); iexact F10_dst
            isplitl [F11_dst]
            · iapply (Entails.of_eq ((oMix_lt d L fx (t := k.val + 1) (n := 2 * k.val - 1) (by omega)).trans (oQ_pos d L fx (n := 2 * k.val - 1) (by have := hm1.2; rwa [show 2 * k.val + 1 - 2 = 2 * k.val - 1 by omega] at this))).symm)
              iapply (Entails.of_eq (congrArg (oqPiece d L fx) (show 2 * k.val + 1 - 2 = 2 * k.val - 1 by omega))); iexact F11_dst
            iapply (Entails.of_eq (oMix_core d L fx k.val)); iexact HOut
          isplitl [F8]
          · iapply (Entails.of_eq (congrArg (inSlotV d L fx a4 cc18_scratch4.sem) (show 2 * k.val + 2 = 2 * (k.val + 1) by ring)))
            iapply (fl_inV d L fx (off_6 L k v2) (k18_off6_inb L k k18_h3) v2 a4 cc18_scratch4.sem); iexists _, _
            isplitr
            rotate_left
            · iexact F8
            ipureintro; intro y; rfl
          isplitl [F10 H6]
          · iapply (Entails.of_eq (congrArg (outSlotV d L fx a6 cc18_scratch6.sem) (show 2 * k.val + 2 = 2 * (k.val + 1) by ring)))
            iapply (fl_outV d L fx (off_5 L k v0) (k18_off5_inb L k k18_h2) v0 a4 a6 cc18_scratch6.sem f0 g4 g6' hl6 hin4); iexists _
            isplitr
            rotate_left
            · isplitl [F10]; · iexact F10
              iexact H6
            ipureintro; intro y; rfl
          isplitl [H5 F9]
          · iapply (Entails.of_eq (congrArg (inSlotV d L fx a5 cc18_scratch5.sem) (show 2 * k.val + 3 = 2 * (k.val + 1) + 1 by ring)))
            iapply (Entails.of_eq (inSlotV_neg d L fx v3').symm)
            isplitl [H5]; · iexists _; iexact H5
            iexact F9
          · iapply (Entails.of_eq (congrArg (outSlotV d L fx a7 cc18_scratch7.sem) (show 2 * k.val + 1 + 2 = 2 * (k.val + 1) + 1 by ring)))
            iapply (fl_outV d L fx (off_10 L k v1) (k18_off10_inb L k k18_h5) v1 a5 a7 cc18_scratch7.sem f1 g5 g7' hl7 hin5); iexists _
            isplitr
            rotate_left
            · isplitl [F11]; · iexact F11
              iexact H7
            ipureintro; intro y; rfl
        · have h7 : k.val = 7 := by unfold valid at v3; omega
          by_cases hb : big L
          · -- the last trip of a tile with sixteen pieces: nothing more to fetch
            have k18_h1 : k18_cond1 k = 1#1 := (cond1_iff k).mpr (by omega)
            have k18_h2 : k18_cond2 L k = 1#1 := cond2_iff L k
            have k18_h3 : ¬ k18_cond3 L k = 1#1 := fun h => absurd ((cond3_iff L k).mp h) (by omega)
            have k18_h4 : k18_cond4 k = 1#1 := (cond4_iff k).mpr (by omega)
            have k18_h5 : k18_cond5 L k = 1#1 := (cond5_iff L k).mpr (by first | (unfold valid big at *; omega) | (unfold big at *; omega) | omega)
            have k18_h6 : ¬ k18_cond6 L k = 1#1 := fun h => absurd ((cond6_iff L k).mp h) (by first | (unfold valid big at *; omega) | (unfold big at *; omega) | omega)
            have v0 : valid L (2 * k.val) := by unfold valid big at *; omega
            have v1 : valid L (2 * k.val + 1) := by unfold valid big at *; omega
            have v2 : ¬ valid L (2 * k.val + 2) := by unfold valid big at *; omega
            have v3' : ¬ valid L (2 * k.val + 3) := by unfold valid big at *; omega
            have hm0 : 2 ≤ 2 * k.val ∧ valid L (2 * k.val - 2) := ⟨by omega, by unfold valid big at *; omega⟩
            have hm1 : 2 ≤ 2 * k.val + 1 ∧ valid L (2 * k.val + 1 - 2) := ⟨by omega, by unfold valid big at *; omega⟩
            ihave S8 := (Entails.of_eq (inSlotV_pos d L fx v0)) $$ S8
            icases S8 with ⟨%g4, %hin4, F8⟩
            ihave S9 := (Entails.of_eq (inSlotV_pos d L fx v1)) $$ S9
            icases S9 with ⟨%g5, %hin5, F9⟩
            ihave S10 := (Entails.of_eq (outSlotV_pos d L fx hm0)) $$ S10
            icases S10 with ⟨%g6, F10, R6⟩
            ihave S11 := (Entails.of_eq (outSlotV_pos d L fx hm1)) $$ S11
            icases S11 with ⟨%g7, F11, R7⟩
            ihave HX := (Entails.of_eq (xSet_out (xP d L fx) k.val hk)) $$ HX
            icases HX with ⟨-, -, HX⟩
            ihave HOut := (Entails.of_eq (oSet_out (oMix d L fx k.val) k.val hk)) $$ HOut
            icases HOut with ⟨Y0, Y1, HOut⟩
            ihave Y0 := (Entails.of_eq ((oMix_ge d L fx (t := k.val) (n := 2 * k.val) (by omega)).trans (oP_pos (F := F) d L v0))) $$ Y0
            icases Y0 with ⟨%f0, Y0⟩
            ihave Y0 := (Entails.of_eq (out_congr d L (off_5 L k v0).symm (out_inb L _) (k18_off5_inb L k k18_h2) f0)) $$ Y0
            ihave Y1 := (Entails.of_eq ((oMix_ge d L fx (t := k.val) (n := 2 * k.val + 1) (by omega)).trans (oP_pos (F := F) d L v1))) $$ Y1
            icases Y1 with ⟨%f1, Y1⟩
            ihave Y1 := (Entails.of_eq (out_congr d L (off_10 L k v1).symm (out_inb L _) (k18_off10_inb L k k18_h5) f1)) $$ Y1
            sl_exec
            sl_for (laneV0 d L g4) $$ [F8_dst R6]
            case region =>
              intro (j : Fin k18_t2_loop.trips) _
              unfold laneV0
              iintro ⟨HA, %g, HB, %hl⟩
              sl_exec
              sl_step
              isplitl [HA]; · iexact HA
              iexists _; isplitl [HB]; · iexact HB
              ipureintro; exact lanes_step d L a4 a6 g4 g j _ _ hl
            · unfold laneV0
              isplitl [F8_dst]; · iexact F8_dst
              iexists _; isplitl [R6]; · iexact R6
              ipureintro; exact lanes_zero d L a4 a6 g4 _
            iintro %_ HI
            unfold laneV0
            icases HI with ⟨H4, %g6', H6, %hl6⟩
            have hl6 : Lanes d L a4 a6 g4 g6' 200 := Eq.mp (congrArg (Lanes d L a4 a6 g4 g6') trips2) hl6
            sl_exec
            sl_for (laneV1 d L g5) $$ [F9_dst R7]
            case region =>
              intro (j : Fin k18_t3_loop.trips) _
              unfold laneV1
              iintro ⟨HA, %g, HB, %hl⟩
              sl_exec
              sl_step
              isplitl [HA]; · iexact HA
              iexists _; isplitl [HB]; · iexact HB
              ipureintro; exact lanes_step' d L a5 a7 g5 g j _ _ hl
            · unfold laneV1
              isplitl [F9_dst]; · iexact F9_dst
              iexists _; isplitl [R7]; · iexact R7
              ipureintro; exact lanes_zero d L a5 a7 g5 _
            iintro %_ HI
            unfold laneV1
            icases HI with ⟨H5, %g7', H7, %hl7⟩
            have hl7 : Lanes d L a5 a7 g5 g7' 200 := Eq.mp (congrArg (Lanes d L a5 a7 g5 g7') trips3) hl7
            sl_exec
            sl_step
            isplitr; · iexact Hmw
            isplitl [HO]
            · iexists _; isplitr
              rotate_left
              · iexact HO
              ipureintro; intro p hp
              rcases Finset.mem_insert.mp hp with rfl | hp
              · exact .inr rfl
              rcases Finset.mem_insert.mp hp with rfl | hp
              · exact .inr rfl
              rcases Finset.mem_insert.mp hp with rfl | hp
              · exact .inr rfl
              rcases Finset.mem_insert.mp hp with rfl | hp
              · exact .inr rfl
              exact hW' p hp
            isplitl [HX F8_src F9_src]
            · iapply (Entails.of_eq (xSet_in (xP d L fx) k.val hk).symm)
              isplitl [F8_src]; · iapply (Entails.of_eq (xP_pos d L fx v0).symm); iexact F8_src
              isplitl [F9_src]; · iapply (Entails.of_eq (xP_pos d L fx v1).symm); iexact F9_src
              iexact HX
            isplitl [HOut F10_dst F11_dst]
            · iapply (Entails.of_eq (oSet_in (oMix d L fx (k.val + 1)) k.val hk (by omega)).symm)
              isplitl [F10_dst]; · iapply (Entails.of_eq ((oMix_lt d L fx (t := k.val + 1) (n := 2 * k.val - 2) (by omega)).trans (oQ_pos d L fx hm0.2)).symm); iexact F10_dst
              isplitl [F11_dst]
              · iapply (Entails.of_eq ((oMix_lt d L fx (t := k.val + 1) (n := 2 * k.val - 1) (by omega)).trans (oQ_pos d L fx (n := 2 * k.val - 1) (by have := hm1.2; rwa [show 2 * k.val + 1 - 2 = 2 * k.val - 1 by omega] at this))).symm)
                iapply (Entails.of_eq (congrArg (oqPiece d L fx) (show 2 * k.val + 1 - 2 = 2 * k.val - 1 by omega))); iexact F11_dst
              iapply (Entails.of_eq (oMix_core d L fx k.val)); iexact HOut
            isplitl [H4 F8]
            · iapply (Entails.of_eq (congrArg (inSlotV d L fx a4 cc18_scratch4.sem) (show 2 * k.val + 2 = 2 * (k.val + 1) by ring)))
              iapply (Entails.of_eq (inSlotV_neg d L fx v2).symm)
              isplitl [H4]; · iexists _; iexact H4
              iexact F8
            isplitl [F10 H6]
            · iapply (Entails.of_eq (congrArg (outSlotV d L fx a6 cc18_scratch6.sem) (show 2 * k.val + 2 = 2 * (k.val + 1) by ring)))
              iapply (fl_outV d L fx (off_5 L k v0) (k18_off5_inb L k k18_h2) v0 a4 a6 cc18_scratch6.sem f0 g4 g6' hl6 hin4); iexists _
              isplitr
              rotate_left
              · isplitl [F10]; · iexact F10
                iexact H6
              ipureintro; intro y; rfl
            isplitl [H5 F9]
            · iapply (Entails.of_eq (congrArg (inSlotV d L fx a5 cc18_scratch5.sem) (show 2 * k.val + 3 = 2 * (k.val + 1) + 1 by ring)))
              iapply (Entails.of_eq (inSlotV_neg d L fx v3').symm)
              isplitl [H5]; · iexists _; iexact H5
              iexact F9
            · iapply (Entails.of_eq (congrArg (outSlotV d L fx a7 cc18_scratch7.sem) (show 2 * k.val + 1 + 2 = 2 * (k.val + 1) + 1 by ring)))
              iapply (fl_outV d L fx (off_10 L k v1) (k18_off10_inb L k k18_h5) v1 a5 a7 cc18_scratch7.sem f1 g5 g7' hl7 hin5); iexists _
              isplitr
              rotate_left
              · isplitl [F11]; · iexact F11
                iexact H7
              ipureintro; intro y; rfl
          · -- the last trip of a tile with fifteen pieces: the second slot only drains
            have k18_h1 : k18_cond1 k = 1#1 := (cond1_iff k).mpr (by omega)
            have k18_h2 : k18_cond2 L k = 1#1 := cond2_iff L k
            have k18_h3 : ¬ k18_cond3 L k = 1#1 := fun h => absurd ((cond3_iff L k).mp h) (by omega)
            have k18_h4 : k18_cond4 k = 1#1 := (cond4_iff k).mpr (by omega)
            have k18_h5 : ¬ k18_cond5 L k = 1#1 := fun h => absurd ((cond5_iff L k).mp h) (by first | (unfold valid big at *; omega) | (unfold big at *; omega) | omega)
            have k18_h6 : ¬ k18_cond6 L k = 1#1 := fun h => absurd ((cond6_iff L k).mp h) (by first | (unfold valid big at *; omega) | (unfold big at *; omega) | omega)
            have v0 : valid L (2 * k.val) := by unfold valid big at *; omega
            have v1 : ¬ valid L (2 * k.val + 1) := by unfold valid big at *; omega
            have v2 : ¬ valid L (2 * k.val + 2) := by unfold valid big at *; omega
            have v3' : ¬ valid L (2 * k.val + 3) := by unfold valid big at *; omega
            have hm0 : 2 ≤ 2 * k.val ∧ valid L (2 * k.val - 2) := ⟨by omega, by unfold valid big at *; omega⟩
            have hm1 : 2 ≤ 2 * k.val + 1 ∧ valid L (2 * k.val + 1 - 2) := ⟨by omega, by unfold valid big at *; omega⟩
            ihave S8 := (Entails.of_eq (inSlotV_pos d L fx v0)) $$ S8
            icases S8 with ⟨%g4, %hin4, F8⟩
            ihave S9 := (Entails.of_eq (inSlotV_neg d L fx v1)) $$ S9
            icases S9 with ⟨⟨%g5, H5⟩, F9⟩
            ihave S10 := (Entails.of_eq (outSlotV_pos d L fx hm0)) $$ S10
            icases S10 with ⟨%g6, F10, R6⟩
            ihave S11 := (Entails.of_eq (outSlotV_pos d L fx hm1)) $$ S11
            icases S11 with ⟨%g7, F11, R7⟩
            ihave HX := (Entails.of_eq (xSet_out (xP d L fx) k.val hk)) $$ HX
            icases HX with ⟨-, -, HX⟩
            ihave HOut := (Entails.of_eq (oSet_out (oMix d L fx k.val) k.val hk)) $$ HOut
            icases HOut with ⟨Y0, -, HOut⟩
            ihave Y0 := (Entails.of_eq ((oMix_ge d L fx (t := k.val) (n := 2 * k.val) (by omega)).trans (oP_pos (F := F) d L v0))) $$ Y0
            icases Y0 with ⟨%f0, Y0⟩
            ihave Y0 := (Entails.of_eq (out_congr d L (off_5 L k v0).symm (out_inb L _) (k18_off5_inb L k k18_h2) f0)) $$ Y0
            sl_exec
            sl_for (laneV0 d L g4) $$ [F8_dst R6]
            case region =>
              intro (j : Fin k18_t2_loop.trips) _
              unfold laneV0
              iintro ⟨HA, %g, HB, %hl⟩
              sl_exec
              sl_step
              isplitl [HA]; · iexact HA
              iexists _; isplitl [HB]; · iexact HB
              ipureintro; exact lanes_step d L a4 a6 g4 g j _ _ hl
            · unfold laneV0
              isplitl [F8_dst]; · iexact F8_dst
              iexists _; isplitl [R6]; · iexact R6
              ipureintro; exact lanes_zero d L a4 a6 g4 _
            iintro %_ HI
            unfold laneV0
            icases HI with ⟨H4, %g6', H6, %hl6⟩
            have hl6 : Lanes d L a4 a6 g4 g6' 200 := Eq.mp (congrArg (Lanes d L a4 a6 g4 g6') trips2) hl6
            sl_exec
            sl_step
            isplitr; · iexact Hmw
            isplitl [HO]
            · iexists _; isplitr
              rotate_left
              · iexact HO
              ipureintro; intro p hp
              rcases Finset.mem_insert.mp hp with rfl | hp
              · exact .inr rfl
              rcases Finset.mem_insert.mp hp with rfl | hp
              · exact .inr rfl
              rcases Finset.mem_insert.mp hp with rfl | hp
              · exact .inr rfl
              exact hW' p hp
            isplitl [HX F8_src]
            · iapply (Entails.of_eq (xSet_in (xP d L fx) k.val hk).symm)
              isplitl [F8_src]; · iapply (Entails.of_eq (xP_pos d L fx v0).symm); iexact F8_src
              isplitr; · iapply (Entails.of_eq (xP_neg d L fx v1).symm); iempintro
              iexact HX
            isplitl [HOut F10_dst F11_dst]
            · iapply (Entails.of_eq (oSet_in (oMix d L fx (k.val + 1)) k.val hk (by omega)).symm)
              isplitl [F10_dst]; · iapply (Entails.of_eq ((oMix_lt d L fx (t := k.val + 1) (n := 2 * k.val - 2) (by omega)).trans (oQ_pos d L fx hm0.2)).symm); iexact F10_dst
              isplitl [F11_dst]
              · iapply (Entails.of_eq ((oMix_lt d L fx (t := k.val + 1) (n := 2 * k.val - 1) (by omega)).trans (oQ_pos d L fx (n := 2 * k.val - 1) (by have := hm1.2; rwa [show 2 * k.val + 1 - 2 = 2 * k.val - 1 by omega] at this))).symm)
                iapply (Entails.of_eq (congrArg (oqPiece d L fx) (show 2 * k.val + 1 - 2 = 2 * k.val - 1 by omega))); iexact F11_dst
              iapply (Entails.of_eq (oMix_core d L fx k.val)); iexact HOut
            isplitl [H4 F8]
            · iapply (Entails.of_eq (congrArg (inSlotV d L fx a4 cc18_scratch4.sem) (show 2 * k.val + 2 = 2 * (k.val + 1) by ring)))
              iapply (Entails.of_eq (inSlotV_neg d L fx v2).symm)
              isplitl [H4]; · iexists _; iexact H4
              iexact F8
            isplitl [F10 H6]
            · iapply (Entails.of_eq (congrArg (outSlotV d L fx a6 cc18_scratch6.sem) (show 2 * k.val + 2 = 2 * (k.val + 1) by ring)))
              iapply (fl_outV d L fx (off_5 L k v0) (k18_off5_inb L k k18_h2) v0 a4 a6 cc18_scratch6.sem f0 g4 g6' hl6 hin4); iexists _
              isplitr
              rotate_left
              · isplitl [F10]; · iexact F10
                iexact H6
              ipureintro; intro y; rfl
            isplitl [H5 F9]
            · iapply (Entails.of_eq (congrArg (inSlotV d L fx a5 cc18_scratch5.sem) (show 2 * k.val + 3 = 2 * (k.val + 1) + 1 by ring)))
              iapply (Entails.of_eq (inSlotV_neg d L fx v3').symm)
              isplitl [H5]; · iexists _; iexact H5
              iexact F9
            · iapply (Entails.of_eq (outSlotV_neg d L fx (m := 2 * (k.val + 1) + 1) (by intro h; apply v1; have := h.2; rwa [show 2 * (k.val + 1) + 1 - 2 = 2 * k.val + 1 by omega] at this)).symm)
              isplitl [R7]; · iexists _; iexact R7
              iexact F11
    · have hk0 : k.val = 0 := by omega
      -- the first trip: nothing to drain
      have k18_h1 : ¬ k18_cond1 k = 1#1 := fun h => absurd ((cond1_iff k).mp h) (by omega)
      have k18_h2 : k18_cond2 L k = 1#1 := cond2_iff L k
      have k18_h3 : k18_cond3 L k = 1#1 := (cond3_iff L k).mpr (by omega)
      have k18_h4 : ¬ k18_cond4 k = 1#1 := fun h => absurd ((cond4_iff k).mp h) (by omega)
      have k18_h5 : k18_cond5 L k = 1#1 := (cond5_iff L k).mpr (by first | (unfold valid big at *; omega) | (unfold big at *; omega) | omega)
      have k18_h6 : k18_cond6 L k = 1#1 := (cond6_iff L k).mpr (by first | (unfold valid big at *; omega) | (unfold big at *; omega) | omega)
      have v0 : valid L (2 * k.val) := by unfold valid big at *; omega
      have v1 : valid L (2 * k.val + 1) := by unfold valid big at *; omega
      have v2 : valid L (2 * k.val + 2) := by unfold valid big at *; omega
      have v3' : valid L (2 * k.val + 3) := by unfold valid big at *; omega
      have hm0 : ¬ (2 ≤ 2 * k.val ∧ valid L (2 * k.val - 2)) := by omega
      have hm1 : ¬ (2 ≤ 2 * k.val + 1 ∧ valid L (2 * k.val + 1 - 2)) := by omega
      ihave S8 := (Entails.of_eq (inSlotV_pos d L fx v0)) $$ S8
      icases S8 with ⟨%g4, %hin4, F8⟩
      ihave S9 := (Entails.of_eq (inSlotV_pos d L fx v1)) $$ S9
      icases S9 with ⟨%g5, %hin5, F9⟩
      ihave S10 := (Entails.of_eq (outSlotV_neg d L fx hm0)) $$ S10
      icases S10 with ⟨⟨%g6, R6⟩, F10⟩
      ihave S11 := (Entails.of_eq (outSlotV_neg d L fx hm1)) $$ S11
      icases S11 with ⟨⟨%g7, R7⟩, F11⟩
      ihave HX := (Entails.of_eq (xSet_out (xP d L fx) k.val hk)) $$ HX
      icases HX with ⟨X2, X3, HX⟩
      ihave X2 := (Entails.of_eq (xP_pos d L fx v2)) $$ X2
      ihave X2 := (Entails.of_eq (in_congr d L (off_6 L k v2).symm (in_inb L _) (k18_off6_inb L k k18_h3) fx)) $$ X2
      ihave X3 := (Entails.of_eq (xP_pos d L fx v3')) $$ X3
      ihave X3 := (Entails.of_eq (in_congr d L (off_11 L k v3').symm (in_inb L _) (k18_off11_inb L k k18_h6) fx)) $$ X3
      ihave HOut := (Entails.of_eq (oSet_out (oMix d L fx k.val) k.val hk)) $$ HOut
      icases HOut with ⟨Y0, Y1, HOut⟩
      ihave Y0 := (Entails.of_eq ((oMix_ge d L fx (t := k.val) (n := 2 * k.val) (by omega)).trans (oP_pos (F := F) d L v0))) $$ Y0
      icases Y0 with ⟨%f0, Y0⟩
      ihave Y0 := (Entails.of_eq (out_congr d L (off_5 L k v0).symm (out_inb L _) (k18_off5_inb L k k18_h2) f0)) $$ Y0
      ihave Y1 := (Entails.of_eq ((oMix_ge d L fx (t := k.val) (n := 2 * k.val + 1) (by omega)).trans (oP_pos (F := F) d L v1))) $$ Y1
      icases Y1 with ⟨%f1, Y1⟩
      ihave Y1 := (Entails.of_eq (out_congr d L (off_10 L k v1).symm (out_inb L _) (k18_off10_inb L k k18_h5) f1)) $$ Y1
      sl_exec
      sl_for (laneV0 d L g4) $$ [F8_dst R6]
      case region =>
        intro (j : Fin k18_t2_loop.trips) _
        unfold laneV0
        iintro ⟨HA, %g, HB, %hl⟩
        sl_exec
        sl_step
        isplitl [HA]; · iexact HA
        iexists _; isplitl [HB]; · iexact HB
        ipureintro; exact lanes_step d L a4 a6 g4 g j _ _ hl
      · unfold laneV0
        isplitl [F8_dst]; · iexact F8_dst
        iexists _; isplitl [R6]; · iexact R6
        ipureintro; exact lanes_zero d L a4 a6 g4 _
      iintro %_ HI
      unfold laneV0
      icases HI with ⟨H4, %g6', H6, %hl6⟩
      have hl6 : Lanes d L a4 a6 g4 g6' 200 := Eq.mp (congrArg (Lanes d L a4 a6 g4 g6') trips2) hl6
      sl_exec
      sl_for (laneV1 d L g5) $$ [F9_dst R7]
      case region =>
        intro (j : Fin k18_t3_loop.trips) _
        unfold laneV1
        iintro ⟨HA, %g, HB, %hl⟩
        sl_exec
        sl_step
        isplitl [HA]; · iexact HA
        iexists _; isplitl [HB]; · iexact HB
        ipureintro; exact lanes_step' d L a5 a7 g5 g j _ _ hl
      · unfold laneV1
        isplitl [F9_dst]; · iexact F9_dst
        iexists _; isplitl [R7]; · iexact R7
        ipureintro; exact lanes_zero d L a5 a7 g5 _
      iintro %_ HI
      unfold laneV1
      icases HI with ⟨H5, %g7', H7, %hl7⟩
      have hl7 : Lanes d L a5 a7 g5 g7' 200 := Eq.mp (congrArg (Lanes d L a5 a7 g5 g7') trips3) hl7
      sl_exec
      sl_step
      isplitr; · iexact Hmw
      isplitl [HO]
      · iexists _; isplitr
        rotate_left
        · iexact HO
        ipureintro; intro p hp
        rcases Finset.mem_insert.mp hp with rfl | hp
        · exact .inr rfl
        rcases Finset.mem_insert.mp hp with rfl | hp
        · exact .inr rfl
        exact hW' p hp
      isplitl [HX F8_src F9_src]
      · iapply (Entails.of_eq (xSet_in (xP d L fx) k.val hk).symm)
        isplitl [F8_src]; · iapply (Entails.of_eq (xP_pos d L fx v0).symm); iexact F8_src
        isplitl [F9_src]; · iapply (Entails.of_eq (xP_pos d L fx v1).symm); iexact F9_src
        iexact HX
      isplitl [HOut]
      · iapply (Entails.of_eq (congrArg (fun s => bigSep s (oMix d L fx (k.val + 1))) (show oCore k.val = oSet (k.val + 1) by rw [hk0]; decide)))
        iapply (Entails.of_eq (oMix_core d L fx k.val)); iexact HOut
      isplitl [F8]
      · iapply (Entails.of_eq (congrArg (inSlotV d L fx a4 cc18_scratch4.sem) (show 2 * k.val + 2 = 2 * (k.val + 1) by ring)))
        iapply (fl_inV d L fx (off_6 L k v2) (k18_off6_inb L k k18_h3) v2 a4 cc18_scratch4.sem); iexists _, _
        isplitr
        rotate_left
        · iexact F8
        ipureintro; intro y; rfl
      isplitl [F10 H6]
      · iapply (Entails.of_eq (congrArg (outSlotV d L fx a6 cc18_scratch6.sem) (show 2 * k.val + 2 = 2 * (k.val + 1) by ring)))
        iapply (fl_outV d L fx (off_5 L k v0) (k18_off5_inb L k k18_h2) v0 a4 a6 cc18_scratch6.sem f0 g4 g6' hl6 hin4); iexists _
        isplitr
        rotate_left
        · isplitl [F10]; · iexact F10
          iexact H6
        ipureintro; intro y; rfl
      isplitl [F9]
      · iapply (Entails.of_eq (congrArg (inSlotV d L fx a5 cc18_scratch5.sem) (show 2 * k.val + 3 = 2 * (k.val + 1) + 1 by ring)))
        iapply (fl_inV d L fx (off_11 L k v3') (k18_off11_inb L k k18_h6) v3' a5 cc18_scratch5.sem); iexists _, _
        isplitr
        rotate_left
        · iexact F9
        ipureintro; intro y; rfl
      · iapply (Entails.of_eq (congrArg (outSlotV d L fx a7 cc18_scratch7.sem) (show 2 * k.val + 1 + 2 = 2 * (k.val + 1) + 1 by ring)))
        iapply (fl_outV d L fx (off_10 L k v1) (k18_off10_inb L k k18_h5) v1 a5 a7 cc18_scratch7.sem f1 g5 g7' hl7 hin5); iexists _
        isplitr
        rotate_left
        · isplitl [F11]; · iexact F11
          iexact H7
        ipureintro; intro y; rfl
  · unfold invV
    isplitr; · iexact Hmw
    isplitl [HO]
    · iexists W; isplitr
      · ipureintro; exact fun p hp => .inl hp
      · iexact HO
    isplitl [HX]; · iexact HX
    isplitl [HOut]; · iapply (Entails.of_eq (oMix_zero d L fx).symm); iexact HOut
    isplitl [S8]; · iexact S8
    isplitl [H6 Hs10]
    · rw [outSlotV_neg d L fx (by omega)]; isplitl [H6]; · iexists _; iexact H6
      iexact Hs10
    isplitl [S9]; · iexact S9
    rw [outSlotV_neg d L fx (by omega)]; isplitl [H7]; · iexists _; iexact H7
    iexact Hs11
  iintro %acc' HI
  ihave HI := (Entails.of_eq (congrArg (fun t => invV d L O W fx t acc') trips1)) $$ HI
  unfold invV
  icases HI with ⟨-, ⟨%W', %hW', HO⟩, HX, HOut, S8, S10, S9, S11⟩
  have nv16 : ¬ valid L (2 * 8) := by unfold valid; omega
  have nv17 : ¬ valid L (2 * 8 + 1) := by unfold valid; omega
  have hm14 : 2 ≤ 2 * 8 ∧ valid L (2 * 8 - 2) := ⟨by omega, Or.inl (by omega)⟩
  ihave S8 := (Entails.of_eq (inSlotV_neg d L fx nv16)) $$ S8
  icases S8 with ⟨⟨%g4', H4⟩, Hs8⟩
  ihave S9 := (Entails.of_eq (inSlotV_neg d L fx nv17)) $$ S9
  icases S9 with ⟨⟨%g5', H5⟩, Hs9⟩
  ihave S10 := (Entails.of_eq (outSlotV_pos d L fx hm14)) $$ S10
  icases S10 with ⟨%g6', F10, R6⟩
  by_cases hb : big L
  · have k18_h8 : k18_cond8 L = 1#1 := (cond8_iff L).mpr hb
    have hm15 : 2 ≤ 2 * 8 + 1 ∧ valid L (2 * 8 + 1 - 2) := ⟨by omega, Or.inr ⟨by omega, hb⟩⟩
    ihave S11 := (Entails.of_eq (outSlotV_pos d L fx hm15)) $$ S11
    icases S11 with ⟨%g7', F11, R7⟩
    sl_exec
    sl_step
    isplitl [HX]; · iapply (xRange_end d L fx); iexact HX
    isplitl [HOut F10_dst F11_dst]
    · iapply (Entails.of_eq (oRange_end (oQ d L fx)).symm)
      isplitl [F10_dst]; · iapply (Entails.of_eq (oQ_pos d L fx hm14.2).symm); iexact F10_dst
      isplitl [F11_dst]; · iapply (Entails.of_eq (oQ_pos d L fx hm15.2).symm); iexact F11_dst
      iapply (Entails.of_eq (oMix_end d L fx)); iexact HOut
    isplitl [H4]; · iexists _; iexact H4
    isplitl [H5]; · iexists _; iexact H5
    isplitl [R6]; · iexists _; iexact R6
    isplitl [R7]; · iexists _; iexact R7
    isplitl [Hs8]; · iexact Hs8
    isplitl [Hs9]; · iexact Hs9
    isplitl [F10]; · iexact F10
    isplitl [F11]; · iexact F11
    isplitl [HO]
    · iexists _; isplitr
      rotate_left
      · iexact HO
      ipureintro; intro p hp
      rcases Finset.mem_insert.mp hp with rfl | hp
      · exact .inr rfl
      rcases Finset.mem_insert.mp hp with rfl | hp
      · exact .inr rfl
      exact hW' p hp
    iexact HR
  · have k18_h8 : ¬ k18_cond8 L = 1#1 := fun h => hb ((cond8_iff L).mp h)
    have hm15 : ¬ (2 ≤ 2 * 8 + 1 ∧ valid L (2 * 8 + 1 - 2)) := by intro h; have := h.2; unfold valid at this; omega
    ihave S11 := (Entails.of_eq (outSlotV_neg d L fx hm15)) $$ S11
    icases S11 with ⟨⟨%g7', R7⟩, F11⟩
    sl_exec
    sl_step
    isplitl [HX]; · iapply (xRange_end d L fx); iexact HX
    isplitl [HOut F10_dst]
    · iapply (Entails.of_eq (oRange_end (oQ d L fx)).symm)
      isplitl [F10_dst]; · iapply (Entails.of_eq (oQ_pos d L fx hm14.2).symm); iexact F10_dst
      isplitr; · iapply (Entails.of_eq (oQ_neg d L fx (n := 15) (by unfold valid; omega)).symm); iempintro
      iapply (Entails.of_eq (oMix_end d L fx)); iexact HOut
    isplitl [H4]; · iexists _; iexact H4
    isplitl [H5]; · iexists _; iexact H5
    isplitl [R6]; · iexists _; iexact R6
    isplitl [R7]; · iexists _; iexact R7
    isplitl [Hs8]; · iexact Hs8
    isplitl [Hs9]; · iexact Hs9
    isplitl [F10]; · iexact F10
    isplitl [F11]; · iexact F11
    isplitl [HO]
    · iexists _; isplitr
      rotate_left
      · iexact HO
      ipureintro; intro p hp
      rcases Finset.mem_insert.mp hp with rfl | hp
      · exact .inr rfl
      exact hW' p hp
    iexact HR

/-! The subcore's scoped storage: the four staging buffers and the four semaphores of this call, and the rest. -/

abbrev c8 : GSem nD τ sig := (thr d L, SemLoc.dma cc18_scratch4.sem)
abbrev c9 : GSem nD τ sig := (thr d L, SemLoc.dma cc18_scratch5.sem)
abbrev c10 : GSem nD τ sig := (thr d L, SemLoc.dma cc18_scratch6.sem)
abbrev c11 : GSem nD τ sig := (thr d L, SemLoc.dma cc18_scratch7.sem)

omit [FloatOps F] in
theorem ownSems0_V :
    (ownSems0 (thr d L) : sProp 𝕄)
      = iprop(semVal (c8 d L) 0 ∗ semVal (c9 d L) 0 ∗ semVal (c10 d L) 0 ∗ semVal (c11 d L) 0
          ∗ bigSep (((((ownCells (thr d L)).erase (c8 d L)).erase (c9 d L)).erase (c10 d L)).erase (c11 d L)) fun g => semVal g 0) := by
  unfold SparseCore.Cfg.ownSems0
  rw [SparseCore.bigSep_erase' ((mem_ownCells (g := c8 d L)).mpr ⟨rfl, by
      show (SemLoc.dma cc18_scratch4.sem : SemLoc sig).isScoped .scVector = true; decide⟩),
    SparseCore.bigSep_erase' (Finset.mem_erase.mpr ⟨fun e => absurd (Prod.mk.inj e).2 (by decide), (mem_ownCells (g := c9 d L)).mpr ⟨rfl, by
      show (SemLoc.dma cc18_scratch5.sem : SemLoc sig).isScoped .scVector = true; decide⟩⟩),
    SparseCore.bigSep_erase' (Finset.mem_erase.mpr ⟨fun e => absurd (Prod.mk.inj e).2 (by decide), Finset.mem_erase.mpr ⟨fun e => absurd (Prod.mk.inj e).2 (by decide),
      (mem_ownCells (g := c10 d L)).mpr ⟨rfl, by show (SemLoc.dma cc18_scratch6.sem : SemLoc sig).isScoped .scVector = true; decide⟩⟩⟩),
    SparseCore.bigSep_erase' (Finset.mem_erase.mpr ⟨fun e => absurd (Prod.mk.inj e).2 (by decide), Finset.mem_erase.mpr ⟨fun e => absurd (Prod.mk.inj e).2 (by decide),
      Finset.mem_erase.mpr ⟨fun e => absurd (Prod.mk.inj e).2 (by decide),
      (mem_ownCells (g := c11 d L)).mpr ⟨rfl, by show (SemLoc.dma cc18_scratch7.sem : SemLoc sig).isScoped .scVector = true; decide⟩⟩⟩⟩)]

abbrev pV (L : grid18.Coords) : Proc τ := Proc.scVector (cV L) (jV L)

omit [FloatOps F] in
theorem ownBufs_V :
    (ownBufs (thr d L) : sProp 𝕄)
      = iprop((∃ f, (thr d L).loc cc18_scratch0 ↦{fullShare} f) ∗ (∃ f, (thr d L).loc cc18_scratch1 ↦{fullShare} f)
          ∗ (∃ f, (thr d L).loc cc18_scratch2 ↦{fullShare} f) ∗ (∃ f, (thr d L).loc cc18_scratch3 ↦{fullShare} f)
          ∗ bigSep (((((ownRefs (τ := τ) (pV L)).erase ((pV L).devRef cc18_scratch0)).erase ((pV L).devRef cc18_scratch1)).erase
              ((pV L).devRef cc18_scratch2)).erase ((pV L).devRef cc18_scratch3))
              fun b => iprop(∃ f, ((d, b) : Loc nD τ sig) ↦{fullShare} f)) := by
  unfold SparseCore.Cfg.ownBufs
  refine (SparseCore.bigSep_erase' (SparseCore.Cfg.mem_ownRefs_of_owner (p := pV L) (b := (pV L).devRef cc18_scratch0) rfl)).trans ?_
  rw [SparseCore.bigSep_erase' (Finset.mem_erase.mpr ⟨fun e => absurd (Proc.devRef_injective _ e) (show (cc18_scratch1 : Ref sig .scVector) ≠ cc18_scratch0 by decide),
      SparseCore.Cfg.mem_ownRefs_of_owner (p := pV L) (b := (pV L).devRef cc18_scratch1) rfl⟩),
    SparseCore.bigSep_erase' (Finset.mem_erase.mpr ⟨fun e => absurd (Proc.devRef_injective _ e) (show (cc18_scratch2 : Ref sig .scVector) ≠ cc18_scratch1 by decide),
      Finset.mem_erase.mpr ⟨fun e => absurd (Proc.devRef_injective _ e) (show (cc18_scratch2 : Ref sig .scVector) ≠ cc18_scratch0 by decide),
      SparseCore.Cfg.mem_ownRefs_of_owner (p := pV L) (b := (pV L).devRef cc18_scratch2) rfl⟩⟩),
    SparseCore.bigSep_erase' (Finset.mem_erase.mpr ⟨fun e => absurd (Proc.devRef_injective _ e) (show (cc18_scratch3 : Ref sig .scVector) ≠ cc18_scratch2 by decide),
      Finset.mem_erase.mpr ⟨fun e => absurd (Proc.devRef_injective _ e) (show (cc18_scratch3 : Ref sig .scVector) ≠ cc18_scratch1 by decide),
      Finset.mem_erase.mpr ⟨fun e => absurd (Proc.devRef_injective _ e) (show (cc18_scratch3 : Ref sig .scVector) ≠ cc18_scratch0 by decide),
      SparseCore.Cfg.mem_ownRefs_of_owner (p := pV L) (b := (pV L).devRef cc18_scratch3) rfl⟩⟩⟩)]

/-- The rest of the subcore's scoped storage, which the task does not touch. -/
def restR : sProp 𝕄 :=
  iprop((bigSep (((((ownRefs (τ := τ) (pV L)).erase ((pV L).devRef cc18_scratch0)).erase ((pV L).devRef cc18_scratch1)).erase
              ((pV L).devRef cc18_scratch2)).erase ((pV L).devRef cc18_scratch3))
              fun b => iprop(∃ f, ((d, b) : Loc nD τ sig) ↦{fullShare} f))
      ∗ bigSep (((((ownCells (thr d L)).erase (c8 d L)).erase (c9 d L)).erase (c10 d L)).erase (c11 d L)) fun g => semVal g 0)

theorem body_pre (hO : ∀ g, O g none = 0) :
    iprop(levAts (K (F := F)).L (K (F := F)).lev ∗ emp ∗ goRes d L fx ∗ ownBufs (thr d L) ∗ ownSems0 (thr d L) ∗ owes (thr d L) O W)
      ⊢ runPre d L O W fx (restR (F := F) d L) := by
  rw [ownSems0_V, ownBufs_V]
  unfold goRes runPre restR
  iintro ⟨#Hlv, -, ⟨HX, HOut⟩, ⟨H4, H5, H6, H7, Hbufs⟩, ⟨Hs8, Hs9, Hs10, Hs11, Hsems⟩, HO⟩
  ihave Hmw := ((K (F := F)).mayWaits_none (thr := thr d L) hO) $$ Hlv
  isplitr; · iexact Hmw
  isplitl [HO]; · iexact HO
  isplitl [HX]; · iexact HX
  isplitl [HOut]; · iexact HOut
  isplitl [H4]; · iexact H4
  isplitl [H5]; · iexact H5
  isplitl [H6]; · iexact H6
  isplitl [H7]; · iexact H7
  isplitl [Hs8]; · iexact Hs8
  isplitl [Hs9]; · iexact Hs9
  isplitl [Hs10]; · iexact Hs10
  isplitl [Hs11]; · iexact Hs11
  isplitl [Hbufs]; · iexact Hbufs
  iexact Hsems

theorem body_post :
    runPost d L O W fx (restR (F := F) d L)
      ⊢ iprop(tdRes d L fx ∗ ownBufs (thr d L) ∗ ownSems0 (thr d L) ∗ ∃ W', ⌜∀ p ∈ W', p ∈ W ∨ p.2 = none⌝ ∗ owes (thr d L) O W') := by
  rw [ownSems0_V, ownBufs_V]
  unfold tdRes runPost restR
  iintro ⟨HX, HOut, H4, H5, H6, H7, Hs8, Hs9, Hs10, Hs11, HW, Hbufs, Hsems⟩
  isplitl [HX HOut]
  · isplitl [HX]; · iexact HX
    iexact HOut
  isplitl [H4 H5 H6 H7 Hbufs]
  · isplitl [H4]; · iexact H4
    isplitl [H5]; · iexact H5
    isplitl [H6]; · iexact H6
    isplitl [H7]; · iexact H7
    iexact Hbufs
  isplitl [Hs8 Hs9 Hs10 Hs11 Hsems]
  · isplitl [Hs8]; · iexact Hs8
    isplitl [Hs9]; · iexact Hs9
    isplitl [Hs10]; · iexact Hs10
    isplitl [Hs11]; · iexact Hs11
    iexact Hsems
  iexact HW

/-- The task in the launch theorem's shape: from what the call hands the tile and the subcore's scoped storage to
    what the tile hands back and the storage again. -/
theorem tile_body (hF : (K (F := F)).Facts) (hO : ∀ g, O g none = 0) :
    iprop(levAts (K (F := F)).L (K (F := F)).lev ∗ emp ∗ goRes d L fx ∗ scopedBufs (thr d L) ∗ scopedSems0 (thr d L) ∗ owes (thr d L) O W)
      ⊢ wp frame (wpE (defs₀ (F := F)) 𝒱₀ (thr d L) none) Set.univ
          (cc18_sc_group L xtW (Memref.isWhole_whole _) oW (Memref.isWhole_whole _) a4 (Memref.isWhole_whole _) a5 (Memref.isWhole_whole _)
            a6 (Memref.isWhole_whole _) a7 (Memref.isWhole_whole _) cc18_scratch4 cc18_scratch5 cc18_scratch6 cc18_scratch7)
          fun _ => iprop(tdRes d L fx ∗ scopedBufs (thr d L) ∗ scopedSems0 (thr d L)
            ∗ ∃ W', ⌜∀ p ∈ W', p ∈ W ∨ p.2 = none⌝ ∗ owes (thr d L) O W') := by
  rw [(K (F := F)).scopedBufs_V hF d (cV L) (jV L), SparseCore.Cfg.scopedSems0_V (Val := Elt F) d (cV L) (jV L)]
  exact (body_pre d L O W fx hO).trans ((tile_run d L O W fx (restR (F := F) d L)).trans (wp_mono frame _ _ fun _ => body_post d L O W fx))

end Tile

end Cert.Proof.TileK18

end
-- ==== Proof.TileBVal18.lean ====
/-
  What the staging buffers of one vector subcore hold while it copies a piece of 3200 consecutive elements of row 18 of
  the transposed argument into the flat result, read index by index. No program and no ownership here: only the contents.

  A transfer lands the piece in row 0 of an 8 × 3200 staging array (`InRow`: position (0, t) of that row holds element
  (0, pos + t) of the transposed argument, `pos` the piece's first column). A loop of 200 trips copies that row, 16 lanes
  per trip, into the first 3200 elements of a flat staging array of 25600: trip `j` reads the 1 × 16 window at columns
  [16 j, 16 j + 16) of row 0 and writes it, flattened, at elements [16 j, 16 j + 16). After `j` trips the first 16 j
  elements of the flat array are the first 16 j elements of the row (`Lanes`); a trip extends the prefix by 16
  (`lanes_step`: an element below 16 j is outside the window written and keeps its value, an element of the window reads
  the lane written there, which is the row's element at the same column). A second transfer writes the first 3200
  elements of the flat array to the piece of the result at the same `pos`; so every element of that piece of the result
  holds the element of row 18 of the transposed argument at its own position (`out_written`): the composite of the three
  index maps t ↦ (0, pos + t) ↦ (0, t) ↦ t ↦ pos + t is the identity on positions of the row.
-/
import proofs.«206869_g37898791420194_cont_8to1_b_558_20_alg».proof.Proof.TileB18Defs
import proofs.«206869_g37898791420194_cont_8to1_b_558_20_alg».proof.Proof.Spec
import Idealize.ShloMosaic.Lib.WritesUnit
import Idealize.ShloMosaic.Lib.ValueLayout

noncomputable section

namespace Cert.Proof.TileBVal18

open Cert.Proof.TileB18 Cert.Kernel Cert.Kernel.Gen
open Idealize.ShloMosaic Idealize.ShloMosaic.ValueIdx

variable {F : FTy → Type} [FloatOps F]
variable (d : Dev nD) (L : grid18.Coords)
variable (fx : Buf (Elt F) ((Memref.whole main_v0_scv : Memref sig .scVector .hbm S22x1600000 .f32).view.loc (thr d L)))

abbrev rowRect : Rect S8x3200 := Rect.unit (s := S8x3200) ![0, 0] S1x3200.size inb_S8x3200_S1x3200_0_0

/-- row 0 of the staging array is piece n of the argument row -/
def InRow (a : Memref sig .scVector .vmem S8x3200 .f32) (ga : Buf (Elt F) (a.view.loc (thr d L))) (n : ℕ) : Prop :=
  ∀ y : S1x3200.Idx, a.view.read (Elt F) ga (rowRect.emb y) = (inM L n).view.read (Elt F) fx y

theorem inRow_fetch (a : Memref sig .scVector .vmem S8x3200 .f32) (gold : Buf (Elt F) (a.view.loc (thr d L)))
    (w : S1x3200.Idx → Elt F .f32) (n : ℕ) (hw : ∀ y, w y = (inM L n).view.read (Elt F) fx y) :
    InRow d L fx a (a.view.writes (Elt F) gold [⟨rowRect, w⟩]) n :=
  fun y => (View.read_writes_cons_emb a.view gold rowRect w [] y).trans (hw y)

def Lanes (a : Memref sig .scVector .vmem S8x3200 .f32) (b : Memref sig .scVector .vmem S25600 .f32)
    (ga : Buf (Elt F) (a.view.loc (thr d L))) (gb : Buf (Elt F) (b.view.loc (thr d L))) (j : ℕ) : Prop :=
  ∀ (r : ℕ) (hr : r < 3200), r < 16 * j →
    b.view.read (Elt F) gb (ix1 (⟨r, by omega⟩ : Fin 25600)) = a.view.read (Elt F) ga (ix2 (0 : Fin 8) (⟨r, hr⟩ : Fin 3200))

theorem lanes_zero (a : Memref sig .scVector .vmem S8x3200 .f32) (b : Memref sig .scVector .vmem S25600 .f32)
    (ga : Buf (Elt F) (a.view.loc (thr d L))) (gb : Buf (Elt F) (b.view.loc (thr d L))) : Lanes d L a b ga gb 0 := by
  intro r hr h; omega

/-- The 1 × 16 window at column `c` of the staging array, read at lane `t`, is element `(0, c + t)`. -/
theorem idx_window {off : Fin 2 → ℕ} {c : ℕ} (h : off = ![0, c]) (p : ∀ a', off a' + S1x16.size a' ≤ S8x3200.size a')
    (t : Fin 16) (hr : c + t.val < 3200) :
    (Rect.unit (s := S8x3200) off S1x16.size p).toLoadRect.idx (ix2 (0 : Fin 1) t) = ix2 (0 : Fin 8) (⟨c + t.val, hr⟩ : Fin 3200) := by
  subst h
  funext a'; apply Fin.ext
  rw [LoadRect.idx_apply]
  match a' with
  | ⟨0, _⟩ => show 0 + 1 * 0 = 0; omega
  | ⟨1, _⟩ => show c + 1 * t.val = c + t.val; omega

/-- One trip of a lane-copy loop, the offsets given by their closed forms. -/
theorem lanes_step_core (a : Memref sig .scVector .vmem S8x3200 .f32) (b : Memref sig .scVector .vmem S25600 .f32)
    (ga : Buf (Elt F) (a.view.loc (thr d L))) (gb : Buf (Elt F) (b.view.loc (thr d L)))
    (t : ℕ) {off3 : Fin 2 → ℕ} {off4 : Fin 1 → ℕ} (h3 : off3 = ![0, 16 * t]) (h4 : off4 = ![16 * t])
    (p3 : ∀ a', off3 a' + S1x16.size a' ≤ S8x3200.size a') (p4 : ∀ a', off4 a' + S16.size a' ≤ S25600.size a')
    (h : Lanes d L a b ga gb t) :
    Lanes d L a b ga (b.view.writes (Elt F) gb [⟨Rect.unit (s := S25600) off4 S16.size p4,
      shapeCast S16 (a.view.readAt (Elt F) (Rect.unit (s := S8x3200) off3 S1x16.size p3).toLoadRect ga) shapeCasts_S1x16_S16⟩]) (t + 1) := by
  intro r hr hlt
  by_cases hlo : r < 16 * t
  · refine (View.read_writes_cons_unit_of_not_mem b.view gb p4 _ [] _ h4 (0 : Fin 1) (Or.inl ?_)).trans (h r hr hlo)
    show r < 16 * t
    exact hlo
  · have hx : r - 16 * t < 16 := by omega
    refine (View.read_writes_cons_unit_of_mem b.view gb p4 _ [] _ (ix1 (⟨r - 16 * t, hx⟩ : Fin 16)) h4 ?_).trans ?_
    · intro a'
      match a' with
      | ⟨0, _⟩ => show r = 16 * t + (r - 16 * t); omega
    · rw [shapeCast_1a_a_apply, View.readAt_apply, idx_window h3 p3 ⟨r - 16 * t, hx⟩ (by show 16 * t + (r - 16 * t) < 3200; omega)]
      congr 2
      apply Fin.ext
      show 16 * t + (r - 16 * t) = r
      omega

theorem lanes_step (a : Memref sig .scVector .vmem S8x3200 .f32) (b : Memref sig .scVector .vmem S25600 .f32)
    (ga : Buf (Elt F) (a.view.loc (thr d L))) (gb : Buf (Elt F) (b.view.loc (thr d L)))
    (j : Fin k18_t2_loop.trips) (p3 : ∀ a', (k18_off3 j) a' + S1x16.size a' ≤ S8x3200.size a')
    (p4 : ∀ a', (k18_off4 j) a' + S16.size a' ≤ S25600.size a') (h : Lanes d L a b ga gb j.val) :
    Lanes d L a b ga (b.view.writes (Elt F) gb [⟨Rect.unit (s := S25600) (k18_off4 j) S16.size p4,
      k18_pay1 (a.view.readAt (Elt F) (Rect.unit (s := S8x3200) (k18_off3 j) S1x16.size p3).toLoadRect ga)⟩]) (j.val + 1) :=
  lanes_step_core d L a b ga gb j.val (k18_off3_eq j) (k18_off4_eq j) p3 p4 h

theorem lanes_step' (a : Memref sig .scVector .vmem S8x3200 .f32) (b : Memref sig .scVector .vmem S25600 .f32)
    (ga : Buf (Elt F) (a.view.loc (thr d L))) (gb : Buf (Elt F) (b.view.loc (thr d L)))
    (j : Fin k18_t3_loop.trips) (p3 : ∀ a', (k18_off8 j) a' + S1x16.size a' ≤ S8x3200.size a')
    (p4 : ∀ a', (k18_off9 j) a' + S16.size a' ≤ S25600.size a') (h : Lanes d L a b ga gb j.val) :
    Lanes d L a b ga (b.view.writes (Elt F) gb [⟨Rect.unit (s := S25600) (k18_off9 j) S16.size p4,
      k18_pay2 (a.view.readAt (Elt F) (Rect.unit (s := S8x3200) (k18_off8 j) S1x16.size p3).toLoadRect ga)⟩]) (j.val + 1) :=
  lanes_step_core d L a b ga gb j.val (k18_off8_eq j) (k18_off9_eq j) p3 p4 h

/-- Position `y` of the write-out window of the flat staging array is its element `y 0`. -/
theorem stg_emb (y : S3200.Idx) (hy : (y 0).val < 25600) :
    (Rect.unit (s := S25600) ![0] S3200.size inb_S25600_S3200_0).emb y = ix1 (⟨(y 0).val, hy⟩ : Fin 25600) := by
  funext a'; apply Fin.ext
  match a' with
  | ⟨0, _⟩ => show 0 + 1 * (y 0).val = (y 0).val; omega

/-- Position `(0, t)` of row 0 of the staging array is its element `(0, t)`. -/
theorem row_emb (t : Fin 3200) : rowRect.emb (ix2 (0 : Fin 1) t) = ix2 (0 : Fin 8) t := by
  funext a'; apply Fin.ext
  match a' with
  | ⟨0, _⟩ => show 0 + 1 * 0 = 0; omega
  | ⟨1, _⟩ => show 0 + 1 * t.val = t.val; omega

/-- Position `(0, t)` of piece `n` of the argument row is element `(0, pos + t)` of the transposed argument;
    position `y` of piece `n` of the result is element `pos + y 0` of the result. -/
theorem in_emb (n : ℕ) (t : Fin 3200) (h : pos L n + t.val < 1600000) :
    (inM L n).view.emb (ix2 (0 : Fin 1) t) = ix2 (18 : Fin 22) (⟨pos L n + t.val, h⟩ : Fin 1600000) := by
  funext a'; apply Fin.ext
  match a' with
  | ⟨0, _⟩ => show 18 + 1 * 0 = 18; omega
  | ⟨1, _⟩ => show pos L n + 1 * t.val = pos L n + t.val; omega

theorem out_emb (n : ℕ) (y : S3200.Idx) (h : pos L n + (y 0).val < 1600000) :
    (outM L n).view.emb y = ix1 (⟨pos L n + (y 0).val, h⟩ : Fin 1600000) := by
  funext a'; apply Fin.ext
  match a' with
  | ⟨0, _⟩ => show pos L n + 1 * (y 0).val = pos L n + (y 0).val; omega

/-- Both lane-copy loops run 200 trips: 200 · 16 = 3200, the whole row. -/
theorem trips2 : k18_t2_loop.trips = 200 := by decide
theorem trips3 : k18_t3_loop.trips = 200 := by decide

/-- After all its trips a lane-copy loop has copied the whole row. -/
theorem lanes_all (a : Memref sig .scVector .vmem S8x3200 .f32) (b : Memref sig .scVector .vmem S25600 .f32)
    (ga : Buf (Elt F) (a.view.loc (thr d L))) (gb : Buf (Elt F) (b.view.loc (thr d L)))
    (h : Lanes d L a b ga gb k18_t2_loop.trips) : Lanes d L a b ga gb 200 := trips2 ▸ h
theorem lanes_all' (a : Memref sig .scVector .vmem S8x3200 .f32) (b : Memref sig .scVector .vmem S25600 .f32)
    (ga : Buf (Elt F) (a.view.loc (thr d L))) (gb : Buf (Elt F) (b.view.loc (thr d L)))
    (h : Lanes d L a b ga gb k18_t3_loop.trips) : Lanes d L a b ga gb 200 := trips3 ▸ h

/-- The write-out of a piece: the first 3200 elements of the flat staging array, which the 200 lane copies filled from
    row 0 of the staging array, which the fetch filled from piece `n` of row 18 of the transposed argument, land at
    piece `n` of the result, at the same positions of the row. -/
theorem out_written (a : Memref sig .scVector .vmem S8x3200 .f32) (b : Memref sig .scVector .vmem S25600 .f32) (n : ℕ)
    (ga : Buf (Elt F) (a.view.loc (thr d L))) (gb : Buf (Elt F) (b.view.loc (thr d L)))
    (f0 : Buf (Elt F) ((outM L n).view.loc (thr d L))) (w : S3200.Idx → Elt F .f32)
    (hw : ∀ y, w y = (stg b).view.read (Elt F) gb y) (hl : Lanes d L a b ga gb 200) (hr : InRow d L fx a ga n) (hv : valid L n) :
    ∀ i ∈ (outM L n).view.set, ((outM L n).view.writes (Elt F) f0 [⟨Rect.whole _, w⟩]) i = Cert.Spec.row 18 fx i := by
  intro i hi
  obtain ⟨y, -, rfl⟩ := Finset.mem_map.mp hi
  have hy : (y 0).val < 3200 := (y 0).isLt
  have hp : pos L n + (y 0).val < 1600000 := by unfold pos; omega
  have e1 : (outM L n).view.writes (Elt F) f0 [⟨Rect.whole _, w⟩] ((outM L n).view.emb y) = w y := by
    have h := View.read_writes_cons_emb (outM L n).view f0 (Rect.whole _) w [] y
    rw [Rect.emb_whole_apply] at h
    exact (cast_eq _ _).symm.trans ((View.read_apply _ _).symm.trans h)
  have e2 : (stg b).view.read (Elt F) gb y = b.view.read (Elt F) gb (ix1 (⟨(y 0).val, by omega⟩ : Fin 25600)) :=
    congrArg (b.view.read (Elt F) gb) (stg_emb y (by omega))
  have e3 : a.view.read (Elt F) ga (ix2 (0 : Fin 8) (⟨(y 0).val, hy⟩ : Fin 3200))
      = (inM L n).view.read (Elt F) fx (ix2 (0 : Fin 1) (⟨(y 0).val, hy⟩ : Fin 3200)) :=
    (congrArg (a.view.read (Elt F) ga) (row_emb ⟨(y 0).val, hy⟩).symm).trans (hr _)
  have e4 : (inM L n).view.read (Elt F) fx (ix2 (0 : Fin 1) (⟨(y 0).val, hy⟩ : Fin 3200))
      = fx (ix2 (18 : Fin 22) (⟨pos L n + (y 0).val, hp⟩ : Fin 1600000)) :=
    ((View.read_apply _ _).trans (cast_eq _ _)).trans (congrArg fx (in_emb L n ⟨(y 0).val, hy⟩ hp))
  have e5 : Cert.Spec.row 18 fx ((outM L n).view.emb y) = fx (ix2 (18 : Fin 22) (⟨pos L n + (y 0).val, hp⟩ : Fin 1600000)) :=
    (congrArg (Cert.Spec.row 18 fx) (out_emb L n y hp)).trans (Cert.Spec.row_apply 18 fx _)
  exact e1.trans ((hw y).trans (e2.trans ((hl _ hy (by omega)).trans (e3.trans (e4.trans e5.symm)))))

end Cert.Proof.TileBVal18

end
-- ==== Proof.TileB18.lean ====
/-
  One vector subcore's task of copy kernel 18 (counting from 0), run symbolically: the two fetch slots and two write-out slots
  between trips of the main loop (what each transfer in flight will hand back, and what the staging buffers hold), the
  invariant of the main loop and of the two lane-copy loops, and the task's run — from the tile's pieces of row 18 of
  the transposed argument and of the result to the same pieces with the result holding the row's elements.
-/
import proofs.«206869_g37898791420194_cont_8to1_b_558_20_alg».proof.Proof.TileB18Defs
import proofs.«206869_g37898791420194_cont_8to1_b_558_20_alg».proof.Proof.TileBVal18
noncomputable section

namespace Cert.Proof.TileB18

open Cert.Kernel Cert.Kernel.Gen Cert.Proof.TileBVal18
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 22) (Elt F) ℕ UU ℕ
local notation "xtW" => (Memref.whole Cert.Kernel.main_v0_scv : Memref Cert.Kernel.sig Kind.scVector Space.hbm Cert.Kernel.S22x1600000 EltTy.f32)
local notation "oW" => (Memref.whole Cert.Kernel.main_v19_scv : Memref Cert.Kernel.sig Kind.scVector Space.hbm Cert.Kernel.S1600000 EltTy.f32)
local notation "a4" => (Memref.whole Cert.Kernel.cc18_scratch0 : Memref Cert.Kernel.sig Kind.scVector Space.vmem Cert.Kernel.S8x3200 EltTy.f32)
local notation "a5" => (Memref.whole Cert.Kernel.cc18_scratch1 : Memref Cert.Kernel.sig Kind.scVector Space.vmem Cert.Kernel.S8x3200 EltTy.f32)
local notation "a6" => (Memref.whole Cert.Kernel.cc18_scratch2 : Memref Cert.Kernel.sig Kind.scVector Space.vmem Cert.Kernel.S25600 EltTy.f32)
local notation "a7" => (Memref.whole Cert.Kernel.cc18_scratch3 : Memref Cert.Kernel.sig Kind.scVector Space.vmem Cert.Kernel.S25600 EltTy.f32)

variable [FloatOps F]

section Tile

variable (d : Dev nD) (L : grid18.Coords)
variable (O : CellTallies nD τ sig (HIx 22)) (W : Waits sig (HIx 22))
variable (fx : Buf (Elt F) ((xtW).view.loc (thr d L)))

/-- Piece `n` of the result at its final contents. -/
abbrev oqPiece (n : ℕ) : sProp 𝕄 := (outM L n).view.loc (thr d L) ↦[(outM L n).view.set]{fullShare} (Cert.Spec.row 18 fx)
theorem oQ_pos {n : ℕ} (v : valid L n) : oQ d L fx n = oqPiece d L fx n := if_pos v
theorem oQ_neg {n : ℕ} (v : ¬ valid L n) : oQ d L fx n = iprop(emp) := if_neg v

/-- A fetch slot, remembering that the staging row it will hand back holds the piece. -/
def inSlotV (a : Memref sig .scVector .vmem S8x3200 .f32) (sm : DmaSem sig) (n : ℕ) : sProp 𝕄 :=
  if valid L n then
    iprop(∃ g, ⌜InRow d L fx a g n⌝ ∗ Transfers.Flight countersEmb (thr d L) (SemLoc.dma sm) (default : HIx 22) NN
      iprop((a.view.loc (thr d L) ↦{fullShare} g) ∗ xtPiece d L fx n))
  else iprop((∃ g, a.view.loc (thr d L) ↦{fullShare} g) ∗ semVal (thr d L, SemLoc.dma sm) 0)

/-- A write-out slot: the piece in flight will come back holding the row's elements. -/
def outSlotV (a : Memref sig .scVector .vmem S25600 .f32) (sm : DmaSem sig) (m : ℕ) : sProp 𝕄 :=
  if 2 ≤ m ∧ valid L (m - 2) then
    iprop(∃ g, Transfers.Flight countersEmb (thr d L) (SemLoc.dma sm) (default : HIx 22) NN
        iprop(oqPiece d L fx (m - 2) ∗ ((stg a).view.loc (thr d L) ↦[(stg a).view.set]{fullShare} g))
      ∗ (a.view.loc (thr d L) ↦[Finset.univ \ (stg a).view.set]{fullShare} g))
  else iprop((∃ g, a.view.loc (thr d L) ↦{fullShare} g) ∗ semVal (thr d L, SemLoc.dma sm) 0)

theorem inSlotV_pos {a : Memref sig .scVector .vmem S8x3200 .f32} {sm : DmaSem sig} {n : ℕ} (v : valid L n) :
    inSlotV d L fx a sm n = iprop(∃ g, ⌜InRow d L fx a g n⌝ ∗ Transfers.Flight countersEmb (thr d L) (SemLoc.dma sm) (default : HIx 22) NN
      iprop((a.view.loc (thr d L) ↦{fullShare} g) ∗ xtPiece d L fx n)) := by unfold inSlotV; rw [if_pos v]
theorem inSlotV_neg {a : Memref sig .scVector .vmem S8x3200 .f32} {sm : DmaSem sig} {n : ℕ} (v : ¬ valid L n) :
    inSlotV d L fx a sm n = iprop((∃ g, a.view.loc (thr d L) ↦{fullShare} g) ∗ semVal (thr d L, SemLoc.dma sm) 0) := by
  unfold inSlotV; rw [if_neg v]
theorem outSlotV_pos {a : Memref sig .scVector .vmem S25600 .f32} {sm : DmaSem sig} {m : ℕ} (h : 2 ≤ m ∧ valid L (m - 2)) :
    outSlotV d L fx a sm m = iprop(∃ g, Transfers.Flight countersEmb (thr d L) (SemLoc.dma sm) (default : HIx 22) NN
        iprop(oqPiece d L fx (m - 2) ∗ ((stg a).view.loc (thr d L) ↦[(stg a).view.set]{fullShare} g))
      ∗ (a.view.loc (thr d L) ↦[Finset.univ \ (stg a).view.set]{fullShare} g)) := by unfold outSlotV; rw [if_pos h]
theorem outSlotV_neg {a : Memref sig .scVector .vmem S25600 .f32} {sm : DmaSem sig} {m : ℕ} (h : ¬ (2 ≤ m ∧ valid L (m - 2))) :
    outSlotV d L fx a sm m = iprop((∃ g, a.view.loc (thr d L) ↦{fullShare} g) ∗ semVal (thr d L, SemLoc.dma sm) 0) := by
  unfold outSlotV; rw [if_neg h]

/-- A fetch just issued: the staging row will hold what the transfer reads, which is the piece. -/
theorem fl_inV {off : Fin 2 → ℕ} {n : ℕ} (h : off = ![18, pos L n]) (p : ∀ a, off a + S1x3200.size a ≤ S22x1600000.size a) (v : valid L n)
    (a : Memref sig .scVector .vmem S8x3200 .f32) (sm : DmaSem sig) :
    (iprop(∃ (gold : Buf (Elt F) (a.view.loc (thr d L))) (w : S1x3200.Idx → Elt F .f32),
        ⌜∀ y, w y = ((xtW).slice (Rect.unit (s := S22x1600000) off S1x3200.size p) (fun _ => rfl)).view.read (Elt F) fx y⌝
        ∗ Transfers.Flight countersEmb (thr d L) (SemLoc.dma sm) (default : HIx 22) NN
          iprop((a.view.loc (thr d L) ↦{fullShare} a.view.writes (Elt F) gold [⟨rowRect, w⟩])
            ∗ (((xtW).slice (Rect.unit (s := S22x1600000) off S1x3200.size p) (fun _ => rfl)).view.loc (thr d L)
                ↦[((xtW).slice (Rect.unit (s := S22x1600000) off S1x3200.size p) (fun _ => rfl)).view.set]{fullShare} fx))) : sProp 𝕄)
      ⊢ inSlotV d L fx a sm n := by
  subst h
  rw [inSlotV_pos d L fx v]
  iintro ⟨%gold, %w, %hw, H⟩
  iexists _
  isplitr
  · ipureintro; exact inRow_fetch d L fx a gold w n hw
  · iexact H

set_option maxHeartbeats 4000000 in
/-- A write-out just issued from a flat staging buffer whose first 3200 elements are the staging row, itself piece
    `n` of the argument row: the piece of the result will hold the row's elements. -/
theorem fl_outV {off : Fin 1 → ℕ} {n : ℕ} (h : off = ![pos L n]) (p : ∀ a, off a + S3200.size a ≤ S1600000.size a) (v : valid L n)
    (ar : Memref sig .scVector .vmem S8x3200 .f32) (a : Memref sig .scVector .vmem S25600 .f32) (sm : DmaSem sig)
    (f0 : Buf (Elt F) ((oW).view.loc (thr d L))) (ga : Buf (Elt F) (ar.view.loc (thr d L))) (gb : Buf (Elt F) (a.view.loc (thr d L)))
    (hl : Lanes d L ar a ga gb 200) (hr : InRow d L fx ar ga n) :
    (iprop(∃ (w : S3200.Idx → Elt F .f32),
        ⌜∀ y, w y = (stg a).view.read (Elt F) gb y⌝
        ∗ Transfers.Flight countersEmb (thr d L) (SemLoc.dma sm) (default : HIx 22) NN
          iprop((((oW).slice (Rect.unit (s := S1600000) off S3200.size p) (fun _ => rfl)).view.loc (thr d L)
                ↦[((oW).slice (Rect.unit (s := S1600000) off S3200.size p) (fun _ => rfl)).view.set]{fullShare}
                  (((oW).slice (Rect.unit (s := S1600000) off S3200.size p) (fun _ => rfl)).view.writes (Elt F) f0 [⟨Rect.whole _, w⟩]))
            ∗ ((stg a).view.loc (thr d L) ↦[(stg a).view.set]{fullShare} gb))
        ∗ (a.view.loc (thr d L) ↦[Finset.univ \ (stg a).view.set]{fullShare} gb)) : sProp 𝕄)
      ⊢ outSlotV d L fx a sm (n + 2) := by
  subst h
  rw [outSlotV_pos d L fx (m := n + 2) ⟨by omega, by simpa using v⟩]
  iintro ⟨%w, %hw, H, R⟩
  have hD : (iprop(((outM L n).view.loc (thr d L) ↦[(outM L n).view.set]{fullShare} ((outM L n).view.writes (Elt F) f0 [⟨Rect.whole _, w⟩]))
          ∗ ((stg a).view.loc (thr d L) ↦[(stg a).view.set]{fullShare} gb)) : sProp 𝕄)
      ⊢ iprop(oqPiece d L fx (n + 2 - 2) ∗ ((stg a).view.loc (thr d L) ↦[(stg a).view.set]{fullShare} gb)) := by
    rw [Nat.add_sub_cancel]
    have e : (((outM L n).view.loc (thr d L) ↦[(outM L n).view.set]{fullShare} ((outM L n).view.writes (Elt F) f0 [⟨Rect.whole _, w⟩])) : sProp 𝕄)
        = oqPiece d L fx n := pointsTo_congr (out_written d L fx ar a n ga gb f0 w hw hl hr v)
    iintro ⟨H1, H2⟩
    isplitl [H1]
    · iapply (Entails.of_eq e); iexact H1
    · iexact H2
  iexists gb
  isplitl [H]
  · iapply (Transfers.Flight_mono countersEmb (thr d L) hD); iexact H
  · iexact R

/-- The result pieces outside the slots before trip `t`: those already written hold the row, the others some contents. -/
def oMix (t n : ℕ) : sProp 𝕄 := if n + 2 < 2 * t then oQ d L fx n else oP (F := F) d L n
theorem oMix_lt {t n : ℕ} (h : n + 2 < 2 * t) : oMix d L fx t n = oQ d L fx n := if_pos h
theorem oMix_ge {t n : ℕ} (h : ¬ n + 2 < 2 * t) : oMix d L fx t n = oP (F := F) d L n := if_neg h
theorem oMix_core (k : ℕ) : bigSep (oCore k) (oMix d L fx k) = bigSep (oCore k) (oMix d L fx (k + 1)) :=
  bigSep_congr fun n hn => by
    have hn' : n + 2 ≠ 2 * k ∧ n + 2 ≠ 2 * k + 1 ∧ n ≠ 2 * k ∧ n ≠ 2 * k + 1 := by
      simp only [oCore, Finset.mem_filter, Finset.mem_range] at hn; exact hn.2
    by_cases h : n + 2 < 2 * k
    · rw [oMix_lt d L fx h, oMix_lt d L fx (by omega)]
    · rw [oMix_ge d L fx h, oMix_ge d L fx (by omega)]
theorem oMix_zero : bigSep (oSet 0) (oMix d L fx 0) = bigSep (Finset.range 18) (oP (F := F) d L) := by
  rw [oSet_zero]; exact bigSep_congr fun n _ => oMix_ge d L fx (by omega)
theorem oMix_end : bigSep (oSet 8) (oMix d L fx 8) = bigSep (oSet 8) (oQ d L fx) :=
  bigSep_congr fun n hn => by
    have hn' : n < 18 ∧ n + 2 ≠ 16 ∧ n + 2 ≠ 17 := by simpa only [oSet, Finset.mem_filter, Finset.mem_range] using hn
    by_cases h : n + 2 < 2 * 8
    · exact oMix_lt d L fx h
    · rw [oMix_ge d L fx h, oP_neg (F := F) d L (by unfold valid; omega), oQ_neg d L fx (by unfold valid; omega)]

/-- The lane-copy loops: before trip `j` the first 16·j elements of the flat staging buffer are the staging row's. -/
def laneV0 (g4 : Buf (Elt F) ((a4).view.loc (thr d L))) (j : ℕ) (_ : PUnit) : sProp 𝕄 :=
  iprop(((a4).view.loc (thr d L) ↦{fullShare} g4) ∗ (∃ g, ((a6).view.loc (thr d L) ↦{fullShare} g) ∗ ⌜Lanes d L a4 a6 g4 g j⌝))
def laneV1 (g5 : Buf (Elt F) ((a5).view.loc (thr d L))) (j : ℕ) (_ : PUnit) : sProp 𝕄 :=
  iprop(((a5).view.loc (thr d L) ↦{fullShare} g5) ∗ (∃ g, ((a7).view.loc (thr d L) ↦{fullShare} g) ∗ ⌜Lanes d L a5 a7 g5 g j⌝))

def invV (t : ℕ) (_ : PUnit) : sProp 𝕄 :=
  iprop(Transfers.MayWaits (thr d L) (none : HIx 22) O
    ∗ (∃ W', ⌜∀ p ∈ W', p ∈ W ∨ p.2 = none⌝ ∗ owes (thr d L) O W')
    ∗ bigSep (xSet t) (xP d L fx) ∗ bigSep (oSet t) (oMix d L fx t)
    ∗ inSlotV d L fx a4 cc18_scratch4.sem (2 * t) ∗ outSlotV d L fx a6 cc18_scratch6.sem (2 * t)
    ∗ inSlotV d L fx a5 cc18_scratch5.sem (2 * t + 1) ∗ outSlotV d L fx a7 cc18_scratch7.sem (2 * t + 1))

/-- After the last trip nothing of the argument row is in a slot: the tile holds all its pieces. -/
theorem xRange_end : bigSep (xSet 8) (xP d L fx) ⊢ bigSep (Finset.range 18) (xP d L fx) := by
  rw [two_out (s := Finset.range 18) (a := 16) (b := 17) (by decide) (by decide) (by decide),
    show ((Finset.range 18).erase 16).erase 17 = xSet 8 by decide]
  iintro H
  isplitr; · iapply (Entails.of_eq (xP_neg d L fx (n := 16) (by unfold valid; omega)).symm); iempintro
  isplitr; · iapply (Entails.of_eq (xP_neg d L fx (n := 17) (by unfold valid; omega)).symm); iempintro
  iexact H
omit [FloatOps F] in
theorem oRange_end (Φ : ℕ → sProp 𝕄) : bigSep (Finset.range 18) Φ = iprop(Φ 14 ∗ Φ 15 ∗ bigSep (oSet 8) Φ) := by
  rw [two_out (s := Finset.range 18) (a := 14) (b := 15) (by decide) (by decide) (by decide),
    show ((Finset.range 18).erase 14).erase 15 = oSet 8 by decide]

/-- What the run starts from and ends with, beside an untouched rest `R`. -/
def runPre (R : sProp 𝕄) : sProp 𝕄 :=
    iprop(Transfers.MayWaits (thr d L) (none : HIx 22) O ∗ owes (thr d L) O W
        ∗ bigSep (Finset.range 18) (xP d L fx) ∗ bigSep (Finset.range 18) (oP (F := F) d L)
        ∗ (∃ g, (a4).view.loc (thr d L) ↦{fullShare} g) ∗ (∃ g, (a5).view.loc (thr d L) ↦{fullShare} g)
        ∗ (∃ g, (a6).view.loc (thr d L) ↦{fullShare} g) ∗ (∃ g, (a7).view.loc (thr d L) ↦{fullShare} g)
        ∗ semVal (thr d L, SemLoc.dma cc18_scratch4.sem) 0 ∗ semVal (thr d L, SemLoc.dma cc18_scratch5.sem) 0
        ∗ semVal (thr d L, SemLoc.dma cc18_scratch6.sem) 0 ∗ semVal (thr d L, SemLoc.dma cc18_scratch7.sem) 0 ∗ R)
def runPost (R : sProp 𝕄) : sProp 𝕄 :=
    iprop(bigSep (Finset.range 18) (xP d L fx) ∗ bigSep (Finset.range 18) (oQ d L fx)
            ∗ (∃ g, (a4).view.loc (thr d L) ↦{fullShare} g) ∗ (∃ g, (a5).view.loc (thr d L) ↦{fullShare} g)
            ∗ (∃ g, (a6).view.loc (thr d L) ↦{fullShare} g) ∗ (∃ g, (a7).view.loc (thr d L) ↦{fullShare} g)
            ∗ semVal (thr d L, SemLoc.dma cc18_scratch4.sem) 0 ∗ semVal (thr d L, SemLoc.dma cc18_scratch5.sem) 0
            ∗ semVal (thr d L, SemLoc.dma cc18_scratch6.sem) 0 ∗ semVal (thr d L, SemLoc.dma cc18_scratch7.sem) 0
            ∗ (∃ W', ⌜∀ p ∈ W', p ∈ W ∨ p.2 = none⌝ ∗ owes (thr d L) O W') ∗ R)

set_option maxHeartbeats 16000000 in
/-- The task's run: from its pieces of the argument row and of the result, the four staging buffers and the four
    semaphores at zero, to the same with every piece of the result holding the row's elements. -/
theorem tile_run (R : sProp 𝕄) :
    runPre d L O W fx R
      ⊢ wp frame (wpE (defs₀ (F := F)) 𝒱₀ (thr d L) none) Set.univ
          (cc18_sc_group L xtW (Memref.isWhole_whole _) oW (Memref.isWhole_whole _) a4 (Memref.isWhole_whole _) a5 (Memref.isWhole_whole _)
            a6 (Memref.isWhole_whole _) a7 (Memref.isWhole_whole _) cc18_scratch4 cc18_scratch5 cc18_scratch6 cc18_scratch7)
          fun _ => runPost d L O W fx R := by
  unfold runPre runPost
  have v0 : valid L 0 := Or.inl (by omega)
  have v1 : valid L 1 := Or.inl (by omega)
  have k18_h7 : k18_cond7 L = 1#1 := cond7_iff L
  iintro ⟨#Hmw, HO, HX, HOut, ⟨%g4, H4⟩, ⟨%g5, H5⟩, ⟨%g6, H6⟩, ⟨%g7, H7⟩, Hs8, Hs9, Hs10, Hs11, HR⟩
  ihave HX := (Entails.of_eq (xRange_split d L fx v0 v1)) $$ HX
  icases HX with ⟨X0, X1, HX⟩
  ihave X0 := (Entails.of_eq (in_congr d L (off_in0 L v0).symm (in_inb L _) (k18_off1_inb L 0) fx)) $$ X0
  ihave X1 := (Entails.of_eq (in_congr d L (off_in1 L v1).symm (in_inb L _) (k18_off1_inb L 1) fx)) $$ X1
  sl_unfold [cc18_sc_group]
  sl_exec
  ihave S8 := (fl_inV d L fx (off_in0 L v0) (k18_off1_inb L 0) v0 a4 cc18_scratch4.sem) $$ [Hs8]
  · iexists _, _
    isplitr
    rotate_left
    · iexact Hs8
    ipureintro; intro y; rfl
  ihave S9 := (fl_inV d L fx (off_in1 L v1) (k18_off1_inb L 1) v1 a5 cc18_scratch5.sem) $$ [Hs9]
  · iexists _, _
    isplitr
    rotate_left
    · iexact Hs9
    ipureintro; intro y; rfl
  sl_for (invV d L O W fx) $$ [HO HX HOut S8 S9 H6 H7 Hs10 Hs11]
  case region =>
    intro (k : Fin k18_t1_loop.trips) acc
    have hk : k.val < 8 := Nat.lt_of_lt_of_eq k.isLt trips1
    unfold invV
    iintro ⟨#Hmw, ⟨%W', %hW', HO⟩, HX, HOut, S8, S10, S9, S11⟩
    by_cases hk1 : 1 ≤ k.val
    · by_cases v3 : valid L (2 * k.val + 3)
      · -- the generic trip: both drains, both pieces worked, both next fetches issued
        have hk6 : k.val ≤ 6 := by unfold valid at v3; omega
        have k18_h1 : k18_cond1 k = 1#1 := (cond1_iff k).mpr (by omega)
        have k18_h2 : k18_cond2 L k = 1#1 := cond2_iff L k
        have k18_h3 : k18_cond3 L k = 1#1 := (cond3_iff L k).mpr (by omega)
        have k18_h4 : k18_cond4 k = 1#1 := (cond4_iff k).mpr (by omega)
        have k18_h5 : k18_cond5 L k = 1#1 := (cond5_iff L k).mpr (by first | (unfold valid big at *; omega) | (unfold big at *; omega) | omega)
        have k18_h6 : k18_cond6 L k = 1#1 := (cond6_iff L k).mpr (by first | (unfold valid big at *; omega) | (unfold big at *; omega) | omega)
        have v0 : valid L (2 * k.val) := by unfold valid big at *; omega
        have v1 : valid L (2 * k.val + 1) := by unfold valid big at *; omega
        have v2 : valid L (2 * k.val + 2) := by unfold valid big at *; omega
        have v3' : valid L (2 * k.val + 3) := by unfold valid big at *; omega
        have hm0 : 2 ≤ 2 * k.val ∧ valid L (2 * k.val - 2) := ⟨by omega, by unfold valid big at *; omega⟩
        have hm1 : 2 ≤ 2 * k.val + 1 ∧ valid L (2 * k.val + 1 - 2) := ⟨by omega, by unfold valid big at *; omega⟩
        ihave S8 := (Entails.of_eq (inSlotV_pos d L fx v0)) $$ S8
        icases S8 with ⟨%g4, %hin4, F8⟩
        ihave S9 := (Entails.of_eq (inSlotV_pos d L fx v1)) $$ S9
        icases S9 with ⟨%g5, %hin5, F9⟩
        ihave S10 := (Entails.of_eq (outSlotV_pos d L fx hm0)) $$ S10
        icases S10 with ⟨%g6, F10, R6⟩
        ihave S11 := (Entails.of_eq (outSlotV_pos d L fx hm1)) $$ S11
        icases S11 with ⟨%g7, F11, R7⟩
        ihave HX := (Entails.of_eq (xSet_out (xP d L fx) k.val hk)) $$ HX
        icases HX with ⟨X2, X3, HX⟩
        ihave X2 := (Entails.of_eq (xP_pos d L fx v2)) $$ X2
        ihave X2 := (Entails.of_eq (in_congr d L (off_6 L k v2).symm (in_inb L _) (k18_off6_inb L k k18_h3) fx)) $$ X2
        ihave X3 := (Entails.of_eq (xP_pos d L fx v3')) $$ X3
        ihave X3 := (Entails.of_eq (in_congr d L (off_11 L k v3').symm (in_inb L _) (k18_off11_inb L k k18_h6) fx)) $$ X3
        ihave HOut := (Entails.of_eq (oSet_out (oMix d L fx k.val) k.val hk)) $$ HOut
        icases HOut with ⟨Y0, Y1, HOut⟩
        ihave Y0 := (Entails.of_eq ((oMix_ge d L fx (t := k.val) (n := 2 * k.val) (by omega)).trans (oP_pos (F := F) d L v0))) $$ Y0
        icases Y0 with ⟨%f0, Y0⟩
        ihave Y0 := (Entails.of_eq (out_congr d L (off_5 L k v0).symm (out_inb L _) (k18_off5_inb L k k18_h2) f0)) $$ Y0
        ihave Y1 := (Entails.of_eq ((oMix_ge d L fx (t := k.val) (n := 2 * k.val + 1) (by omega)).trans (oP_pos (F := F) d L v1))) $$ Y1
        icases Y1 with ⟨%f1, Y1⟩
        ihave Y1 := (Entails.of_eq (out_congr d L (off_10 L k v1).symm (out_inb L _) (k18_off10_inb L k k18_h5) f1)) $$ Y1
        sl_exec
        sl_for (laneV0 d L g4) $$ [F8_dst R6]
        case region =>
          intro (j : Fin k18_t2_loop.trips) _
          unfold laneV0
          iintro ⟨HA, %g, HB, %hl⟩
          sl_exec
          sl_step
          isplitl [HA]; · iexact HA
          iexists _; isplitl [HB]; · iexact HB
          ipureintro; exact lanes_step d L a4 a6 g4 g j _ _ hl
        · unfold laneV0
          isplitl [F8_dst]; · iexact F8_dst
          iexists _; isplitl [R6]; · iexact R6
          ipureintro; exact lanes_zero d L a4 a6 g4 _
        iintro %_ HI
        unfold laneV0
        icases HI with ⟨H4, %g6', H6, %hl6⟩
        have hl6 : Lanes d L a4 a6 g4 g6' 200 := Eq.mp (congrArg (Lanes d L a4 a6 g4 g6') trips2) hl6
        sl_exec
        sl_for (laneV1 d L g5) $$ [F9_dst R7]
        case region =>
          intro (j : Fin k18_t3_loop.trips) _
          unfold laneV1
          iintro ⟨HA, %g, HB, %hl⟩
          sl_exec
          sl_step
          isplitl [HA]; · iexact HA
          iexists _; isplitl [HB]; · iexact HB
          ipureintro; exact lanes_step' d L a5 a7 g5 g j _ _ hl
        · unfold laneV1
          isplitl [F9_dst]; · iexact F9_dst
          iexists _; isplitl [R7]; · iexact R7
          ipureintro; exact lanes_zero d L a5 a7 g5 _
        iintro %_ HI
        unfold laneV1
        icases HI with ⟨H5, %g7', H7, %hl7⟩
        have hl7 : Lanes d L a5 a7 g5 g7' 200 := Eq.mp (congrArg (Lanes d L a5 a7 g5 g7') trips3) hl7
        sl_exec
        sl_step
        isplitr; · iexact Hmw
        isplitl [HO]
        · iexists _; isplitr
          rotate_left
          · iexact HO
          ipureintro; intro p hp
          rcases Finset.mem_insert.mp hp with rfl | hp
          · exact .inr rfl
          rcases Finset.mem_insert.mp hp with rfl | hp
          · exact .inr rfl
          rcases Finset.mem_insert.mp hp with rfl | hp
          · exact .inr rfl
          rcases Finset.mem_insert.mp hp with rfl | hp
          · exact .inr rfl
          exact hW' p hp
        isplitl [HX F8_src F9_src]
        · iapply (Entails.of_eq (xSet_in (xP d L fx) k.val hk).symm)
          isplitl [F8_src]; · iapply (Entails.of_eq (xP_pos d L fx v0).symm); iexact F8_src
          isplitl [F9_src]; · iapply (Entails.of_eq (xP_pos d L fx v1).symm); iexact F9_src
          iexact HX
        isplitl [HOut F10_dst F11_dst]
        · iapply (Entails.of_eq (oSet_in (oMix d L fx (k.val + 1)) k.val hk (by omega)).symm)
          isplitl [F10_dst]; · iapply (Entails.of_eq ((oMix_lt d L fx (t := k.val + 1) (n := 2 * k.val - 2) (by omega)).trans (oQ_pos d L fx hm0.2)).symm); iexact F10_dst
          isplitl [F11_dst]
          · iapply (Entails.of_eq ((oMix_lt d L fx (t := k.val + 1) (n := 2 * k.val - 1) (by omega)).trans (oQ_pos d L fx (n := 2 * k.val - 1) (by have := hm1.2; rwa [show 2 * k.val + 1 - 2 = 2 * k.val - 1 by omega] at this))).symm)
            iapply (Entails.of_eq (congrArg (oqPiece d L fx) (show 2 * k.val + 1 - 2 = 2 * k.val - 1 by omega))); iexact F11_dst
          iapply (Entails.of_eq (oMix_core d L fx k.val)); iexact HOut
        isplitl [F8]
        · iapply (Entails.of_eq (congrArg (inSlotV d L fx a4 cc18_scratch4.sem) (show 2 * k.val + 2 = 2 * (k.val + 1) by ring)))
          iapply (fl_inV d L fx (off_6 L k v2) (k18_off6_inb L k k18_h3) v2 a4 cc18_scratch4.sem); iexists _, _
          isplitr
          rotate_left
          · iexact F8
          ipureintro; intro y; rfl
        isplitl [F10 H6]
        · iapply (Entails.of_eq (congrArg (outSlotV d L fx a6 cc18_scratch6.sem) (show 2 * k.val + 2 = 2 * (k.val + 1) by ring)))
          iapply (fl_outV d L fx (off_5 L k v0) (k18_off5_inb L k k18_h2) v0 a4 a6 cc18_scratch6.sem f0 g4 g6' hl6 hin4); iexists _
          isplitr
          rotate_left
          · isplitl [F10]; · iexact F10
            iexact H6
          ipureintro; intro y; rfl
        isplitl [F9]
        · iapply (Entails.of_eq (congrArg (inSlotV d L fx a5 cc18_scratch5.sem) (show 2 * k.val + 3 = 2 * (k.val + 1) + 1 by ring)))
          iapply (fl_inV d L fx (off_11 L k v3') (k18_off11_inb L k k18_h6) v3' a5 cc18_scratch5.sem); iexists _, _
          isplitr
          rotate_left
          · iexact F9
          ipureintro; intro y; rfl
        · iapply (Entails.of_eq (congrArg (outSlotV d L fx a7 cc18_scratch7.sem) (show 2 * k.val + 1 + 2 = 2 * (k.val + 1) + 1 by ring)))
          iapply (fl_outV d L fx (off_10 L k v1) (k18_off10_inb L k k18_h5) v1 a5 a7 cc18_scratch7.sem f1 g5 g7' hl7 hin5); iexists _
          isplitr
          rotate_left
          · isplitl [F11]; · iexact F11
            iexact H7
          ipureintro; intro y; rfl
      · by_cases h6 : k.val = 6
        · have hb : ¬ big L := fun hb => v3 (Or.inr ⟨by omega, hb⟩)
          -- trip 6 of a tile with fifteen pieces: no sixteenth piece to fetch
          have k18_h1 : k18_cond1 k = 1#1 := (cond1_iff k).mpr (by omega)
          have k18_h2 : k18_cond2 L k = 1#1 := cond2_iff L k
          have k18_h3 : k18_cond3 L k = 1#1 := (cond3_iff L k).mpr (by omega)
          have k18_h4 : k18_cond4 k = 1#1 := (cond4_iff k).mpr (by omega)
          have k18_h5 : k18_cond5 L k = 1#1 := (cond5_iff L k).mpr (by first | (unfold valid big at *; omega) | (unfold big at *; omega) | omega)
          have k18_h6 : ¬ k18_cond6 L k = 1#1 := fun h => absurd ((cond6_iff L k).mp h) (by first | (unfold valid big at *; omega) | (unfold big at *; omega) | omega)
          have v0 : valid L (2 * k.val) := by unfold valid big at *; omega
          have v1 : valid L (2 * k.val + 1) := by unfold valid big at *; omega
          have v2 : valid L (2 * k.val + 2) := by unfold valid big at *; omega
          have v3' : ¬ valid L (2 * k.val + 3) := by unfold valid big at *; omega
          have hm0 : 2 ≤ 2 * k.val ∧ valid L (2 * k.val - 2) := ⟨by omega, by unfold valid big at *; omega⟩
          have hm1 : 2 ≤ 2 * k.val + 1 ∧ valid L (2 * k.val + 1 - 2) := ⟨by omega, by unfold valid big at *; omega⟩
          ihave S8 := (Entails.of_eq (inSlotV_pos d L fx v0)) $$ S8
          icases S8 with ⟨%g4, %hin4, F8⟩
          ihave S9 := (Entails.of_eq (inSlotV_pos d L fx v1)) $$ S9
          icases S9 with ⟨%g5, %hin5, F9⟩
          ihave S10 := (Entails.of_eq (outSlotV_pos d L fx hm0)) $$ S10
          icases S10 with ⟨%g6, F10, R6⟩
          ihave S11 := (Entails.of_eq (outSlotV_pos d L fx hm1)) $$ S11
          icases S11 with ⟨%g7, F11, R7⟩
          ihave HX := (Entails.of_eq (xSet_out (xP d L fx) k.val hk)) $$ HX
          icases HX with ⟨X2, -, HX⟩
          ihave X2 := (Entails.of_eq (xP_pos d L fx v2)) $$ X2
          ihave X2 := (Entails.of_eq (in_congr d L (off_6 L k v2).symm (in_inb L _) (k18_off6_inb L k k18_h3) fx)) $$ X2
          ihave HOut := (Entails.of_eq (oSet_out (oMix d L fx k.val) k.val hk)) $$ HOut
          icases HOut with ⟨Y0, Y1, HOut⟩
          ihave Y0 := (Entails.of_eq ((oMix_ge d L fx (t := k.val) (n := 2 * k.val) (by omega)).trans (oP_pos (F := F) d L v0))) $$ Y0
          icases Y0 with ⟨%f0, Y0⟩
          ihave Y0 := (Entails.of_eq (out_congr d L (off_5 L k v0).symm (out_inb L _) (k18_off5_inb L k k18_h2) f0)) $$ Y0
          ihave Y1 := (Entails.of_eq ((oMix_ge d L fx (t := k.val) (n := 2 * k.val + 1) (by omega)).trans (oP_pos (F := F) d L v1))) $$ Y1
          icases Y1 with ⟨%f1, Y1⟩
          ihave Y1 := (Entails.of_eq (out_congr d L (off_10 L k v1).symm (out_inb L _) (k18_off10_inb L k k18_h5) f1)) $$ Y1
          sl_exec
          sl_for (laneV0 d L g4) $$ [F8_dst R6]
          case region =>
            intro (j : Fin k18_t2_loop.trips) _
            unfold laneV0
            iintro ⟨HA, %g, HB, %hl⟩
            sl_exec
            sl_step
            isplitl [HA]; · iexact HA
            iexists _; isplitl [HB]; · iexact HB
            ipureintro; exact lanes_step d L a4 a6 g4 g j _ _ hl
          · unfold laneV0
            isplitl [F8_dst]; · iexact F8_dst
            iexists _; isplitl [R6]; · iexact R6
            ipureintro; exact lanes_zero d L a4 a6 g4 _
          iintro %_ HI
          unfold laneV0
          icases HI with ⟨H4, %g6', H6, %hl6⟩
          have hl6 : Lanes d L a4 a6 g4 g6' 200 := Eq.mp (congrArg (Lanes d L a4 a6 g4 g6') trips2) hl6
          sl_exec
          sl_for (laneV1 d L g5) $$ [F9_dst R7]
          case region =>
            intro (j : Fin k18_t3_loop.trips) _
            unfold laneV1
            iintro ⟨HA, %g, HB, %hl⟩
            sl_exec
            sl_step
            isplitl [HA]; · iexact HA
            iexists _; isplitl [HB]; · iexact HB
            ipureintro; exact lanes_step' d L a5 a7 g5 g j _ _ hl
          · unfold laneV1
            isplitl [F9_dst]; · iexact F9_dst
            iexists _; isplitl [R7]; · iexact R7
            ipureintro; exact lanes_zero d L a5 a7 g5 _
          iintro %_ HI
          unfold laneV1
          icases HI with ⟨H5, %g7', H7, %hl7⟩
          have hl7 : Lanes d L a5 a7 g5 g7' 200 := Eq.mp (congrArg (Lanes d L a5 a7 g5 g7') trips3) hl7
          sl_exec
          sl_step
          isplitr; · iexact Hmw
          isplitl [HO]
          · iexists _; isplitr
            rotate_left
            · iexact HO
            ipureintro; intro p hp
            rcases Finset.mem_insert.mp hp with rfl | hp
            · exact .inr rfl
            rcases Finset.mem_insert.mp hp with rfl | hp
            · exact .inr rfl
            rcases Finset.mem_insert.mp hp with rfl | hp
            · exact .inr rfl
            rcases Finset.mem_insert.mp hp with rfl | hp
            · exact .inr rfl
            exact hW' p hp
          isplitl [HX F8_src F9_src]
          · iapply (Entails.of_eq (xSet_in (xP d L fx) k.val hk).symm)
            isplitl [F8_src]; · iapply (Entails.of_eq (xP_pos d L fx v0).symm); iexact F8_src
            isplitl [F9_src]; · iapply (Entails.of_eq (xP_pos d L fx v1).symm); iexact F9_src
            iexact HX
          isplitl [HOut F10_dst F11_dst]
          · iapply (Entails.of_eq (oSet_in (oMix d L fx (k.val + 1)) k.val hk (by omega)).symm)
            isplitl [F10_dst]; · iapply (Entails.of_eq ((oMix_lt d L fx (t := k.val + 1) (n := 2 * k.val - 2) (by omega)).trans (oQ_pos d L fx hm0.2)).symm); iexact F10_dst
            isplitl [F11_dst]
            · iapply (Entails.of_eq ((oMix_lt d L fx (t := k.val + 1) (n := 2 * k.val - 1) (by omega)).trans (oQ_pos d L fx (n := 2 * k.val - 1) (by have := hm1.2; rwa [show 2 * k.val + 1 - 2 = 2 * k.val - 1 by omega] at this))).symm)
              iapply (Entails.of_eq (congrArg (oqPiece d L fx) (show 2 * k.val + 1 - 2 = 2 * k.val - 1 by omega))); iexact F11_dst
            iapply (Entails.of_eq (oMix_core d L fx k.val)); iexact HOut
          isplitl [F8]
          · iapply (Entails.of_eq (congrArg (inSlotV d L fx a4 cc18_scratch4.sem) (show 2 * k.val + 2 = 2 * (k.val + 1) by ring)))
            iapply (fl_inV d L fx (off_6 L k v2) (k18_off6_inb L k k18_h3) v2 a4 cc18_scratch4.sem); iexists _, _
            isplitr
            rotate_left
            · iexact F8
            ipureintro; intro y; rfl
          isplitl [F10 H6]
          · iapply (Entails.of_eq (congrArg (outSlotV d L fx a6 cc18_scratch6.sem) (show 2 * k.val + 2 = 2 * (k.val + 1) by ring)))
            iapply (fl_outV d L fx (off_5 L k v0) (k18_off5_inb L k k18_h2) v0 a4 a6 cc18_scratch6.sem f0 g4 g6' hl6 hin4); iexists _
            isplitr
            rotate_left
            · isplitl [F10]; · iexact F10
              iexact H6
            ipureintro; intro y; rfl
          isplitl [H5 F9]
          · iapply (Entails.of_eq (congrArg (inSlotV d L fx a5 cc18_scratch5.sem) (show 2 * k.val + 3 = 2 * (k.val + 1) + 1 by ring)))
            iapply (Entails.of_eq (inSlotV_neg d L fx v3').symm)
            isplitl [H5]; · iexists _; iexact H5
            iexact F9
          · iapply (Entails.of_eq (congrArg (outSlotV d L fx a7 cc18_scratch7.sem) (show 2 * k.val + 1 + 2 = 2 * (k.val + 1) + 1 by ring)))
            iapply (fl_outV d L fx (off_10 L k v1) (k18_off10_inb L k k18_h5) v1 a5 a7 cc18_scratch7.sem f1 g5 g7' hl7 hin5); iexists _
            isplitr
            rotate_left
            · isplitl [F11]; · iexact F11
              iexact H7
            ipureintro; intro y; rfl
        · have h7 : k.val = 7 := by unfold valid at v3; omega
          by_cases hb : big L
          · -- the last trip of a tile with sixteen pieces: nothing more to fetch
            have k18_h1 : k18_cond1 k = 1#1 := (cond1_iff k).mpr (by omega)
            have k18_h2 : k18_cond2 L k = 1#1 := cond2_iff L k
            have k18_h3 : ¬ k18_cond3 L k = 1#1 := fun h => absurd ((cond3_iff L k).mp h) (by omega)
            have k18_h4 : k18_cond4 k = 1#1 := (cond4_iff k).mpr (by omega)
            have k18_h5 : k18_cond5 L k = 1#1 := (cond5_iff L k).mpr (by first | (unfold valid big at *; omega) | (unfold big at *; omega) | omega)
            have k18_h6 : ¬ k18_cond6 L k = 1#1 := fun h => absurd ((cond6_iff L k).mp h) (by first | (unfold valid big at *; omega) | (unfold big at *; omega) | omega)
            have v0 : valid L (2 * k.val) := by unfold valid big at *; omega
            have v1 : valid L (2 * k.val + 1) := by unfold valid big at *; omega
            have v2 : ¬ valid L (2 * k.val + 2) := by unfold valid big at *; omega
            have v3' : ¬ valid L (2 * k.val + 3) := by unfold valid big at *; omega
            have hm0 : 2 ≤ 2 * k.val ∧ valid L (2 * k.val - 2) := ⟨by omega, by unfold valid big at *; omega⟩
            have hm1 : 2 ≤ 2 * k.val + 1 ∧ valid L (2 * k.val + 1 - 2) := ⟨by omega, by unfold valid big at *; omega⟩
            ihave S8 := (Entails.of_eq (inSlotV_pos d L fx v0)) $$ S8
            icases S8 with ⟨%g4, %hin4, F8⟩
            ihave S9 := (Entails.of_eq (inSlotV_pos d L fx v1)) $$ S9
            icases S9 with ⟨%g5, %hin5, F9⟩
            ihave S10 := (Entails.of_eq (outSlotV_pos d L fx hm0)) $$ S10
            icases S10 with ⟨%g6, F10, R6⟩
            ihave S11 := (Entails.of_eq (outSlotV_pos d L fx hm1)) $$ S11
            icases S11 with ⟨%g7, F11, R7⟩
            ihave HX := (Entails.of_eq (xSet_out (xP d L fx) k.val hk)) $$ HX
            icases HX with ⟨-, -, HX⟩
            ihave HOut := (Entails.of_eq (oSet_out (oMix d L fx k.val) k.val hk)) $$ HOut
            icases HOut with ⟨Y0, Y1, HOut⟩
            ihave Y0 := (Entails.of_eq ((oMix_ge d L fx (t := k.val) (n := 2 * k.val) (by omega)).trans (oP_pos (F := F) d L v0))) $$ Y0
            icases Y0 with ⟨%f0, Y0⟩
            ihave Y0 := (Entails.of_eq (out_congr d L (off_5 L k v0).symm (out_inb L _) (k18_off5_inb L k k18_h2) f0)) $$ Y0
            ihave Y1 := (Entails.of_eq ((oMix_ge d L fx (t := k.val) (n := 2 * k.val + 1) (by omega)).trans (oP_pos (F := F) d L v1))) $$ Y1
            icases Y1 with ⟨%f1, Y1⟩
            ihave Y1 := (Entails.of_eq (out_congr d L (off_10 L k v1).symm (out_inb L _) (k18_off10_inb L k k18_h5) f1)) $$ Y1
            sl_exec
            sl_for (laneV0 d L g4) $$ [F8_dst R6]
            case region =>
              intro (j : Fin k18_t2_loop.trips) _
              unfold laneV0
              iintro ⟨HA, %g, HB, %hl⟩
              sl_exec
              sl_step
              isplitl [HA]; · iexact HA
              iexists _; isplitl [HB]; · iexact HB
              ipureintro; exact lanes_step d L a4 a6 g4 g j _ _ hl
            · unfold laneV0
              isplitl [F8_dst]; · iexact F8_dst
              iexists _; isplitl [R6]; · iexact R6
              ipureintro; exact lanes_zero d L a4 a6 g4 _
            iintro %_ HI
            unfold laneV0
            icases HI with ⟨H4, %g6', H6, %hl6⟩
            have hl6 : Lanes d L a4 a6 g4 g6' 200 := Eq.mp (congrArg (Lanes d L a4 a6 g4 g6') trips2) hl6
            sl_exec
            sl_for (laneV1 d L g5) $$ [F9_dst R7]
            case region =>
              intro (j : Fin k18_t3_loop.trips) _
              unfold laneV1
              iintro ⟨HA, %g, HB, %hl⟩
              sl_exec
              sl_step
              isplitl [HA]; · iexact HA
              iexists _; isplitl [HB]; · iexact HB
              ipureintro; exact lanes_step' d L a5 a7 g5 g j _ _ hl
            · unfold laneV1
              isplitl [F9_dst]; · iexact F9_dst
              iexists _; isplitl [R7]; · iexact R7
              ipureintro; exact lanes_zero d L a5 a7 g5 _
            iintro %_ HI
            unfold laneV1
            icases HI with ⟨H5, %g7', H7, %hl7⟩
            have hl7 : Lanes d L a5 a7 g5 g7' 200 := Eq.mp (congrArg (Lanes d L a5 a7 g5 g7') trips3) hl7
            sl_exec
            sl_step
            isplitr; · iexact Hmw
            isplitl [HO]
            · iexists _; isplitr
              rotate_left
              · iexact HO
              ipureintro; intro p hp
              rcases Finset.mem_insert.mp hp with rfl | hp
              · exact .inr rfl
              rcases Finset.mem_insert.mp hp with rfl | hp
              · exact .inr rfl
              rcases Finset.mem_insert.mp hp with rfl | hp
              · exact .inr rfl
              rcases Finset.mem_insert.mp hp with rfl | hp
              · exact .inr rfl
              exact hW' p hp
            isplitl [HX F8_src F9_src]
            · iapply (Entails.of_eq (xSet_in (xP d L fx) k.val hk).symm)
              isplitl [F8_src]; · iapply (Entails.of_eq (xP_pos d L fx v0).symm); iexact F8_src
              isplitl [F9_src]; · iapply (Entails.of_eq (xP_pos d L fx v1).symm); iexact F9_src
              iexact HX
            isplitl [HOut F10_dst F11_dst]
            · iapply (Entails.of_eq (oSet_in (oMix d L fx (k.val + 1)) k.val hk (by omega)).symm)
              isplitl [F10_dst]; · iapply (Entails.of_eq ((oMix_lt d L fx (t := k.val + 1) (n := 2 * k.val - 2) (by omega)).trans (oQ_pos d L fx hm0.2)).symm); iexact F10_dst
              isplitl [F11_dst]
              · iapply (Entails.of_eq ((oMix_lt d L fx (t := k.val + 1) (n := 2 * k.val - 1) (by omega)).trans (oQ_pos d L fx (n := 2 * k.val - 1) (by have := hm1.2; rwa [show 2 * k.val + 1 - 2 = 2 * k.val - 1 by omega] at this))).symm)
                iapply (Entails.of_eq (congrArg (oqPiece d L fx) (show 2 * k.val + 1 - 2 = 2 * k.val - 1 by omega))); iexact F11_dst
              iapply (Entails.of_eq (oMix_core d L fx k.val)); iexact HOut
            isplitl [H4 F8]
            · iapply (Entails.of_eq (congrArg (inSlotV d L fx a4 cc18_scratch4.sem) (show 2 * k.val + 2 = 2 * (k.val + 1) by ring)))
              iapply (Entails.of_eq (inSlotV_neg d L fx v2).symm)
              isplitl [H4]; · iexists _; iexact H4
              iexact F8
            isplitl [F10 H6]
            · iapply (Entails.of_eq (congrArg (outSlotV d L fx a6 cc18_scratch6.sem) (show 2 * k.val + 2 = 2 * (k.val + 1) by ring)))
              iapply (fl_outV d L fx (off_5 L k v0) (k18_off5_inb L k k18_h2) v0 a4 a6 cc18_scratch6.sem f0 g4 g6' hl6 hin4); iexists _
              isplitr
              rotate_left
              · isplitl [F10]; · iexact F10
                iexact H6
              ipureintro; intro y; rfl
            isplitl [H5 F9]
            · iapply (Entails.of_eq (congrArg (inSlotV d L fx a5 cc18_scratch5.sem) (show 2 * k.val + 3 = 2 * (k.val + 1) + 1 by ring)))
              iapply (Entails.of_eq (inSlotV_neg d L fx v3').symm)
              isplitl [H5]; · iexists _; iexact H5
              iexact F9
            · iapply (Entails.of_eq (congrArg (outSlotV d L fx a7 cc18_scratch7.sem) (show 2 * k.val + 1 + 2 = 2 * (k.val + 1) + 1 by ring)))
              iapply (fl_outV d L fx (off_10 L k v1) (k18_off10_inb L k k18_h5) v1 a5 a7 cc18_scratch7.sem f1 g5 g7' hl7 hin5); iexists _
              isplitr
              rotate_left
              · isplitl [F11]; · iexact F11
                iexact H7
              ipureintro; intro y; rfl
          · -- the last trip of a tile with fifteen pieces: the second slot only drains
            have k18_h1 : k18_cond1 k = 1#1 := (cond1_iff k).mpr (by omega)
            have k18_h2 : k18_cond2 L k = 1#1 := cond2_iff L k
            have k18_h3 : ¬ k18_cond3 L k = 1#1 := fun h => absurd ((cond3_iff L k).mp h) (by omega)
            have k18_h4 : k18_cond4 k = 1#1 := (cond4_iff k).mpr (by omega)
            have k18_h5 : ¬ k18_cond5 L k = 1#1 := fun h => absurd ((cond5_iff L k).mp h) (by first | (unfold valid big at *; omega) | (unfold big at *; omega) | omega)
            have k18_h6 : ¬ k18_cond6 L k = 1#1 := fun h => absurd ((cond6_iff L k).mp h) (by first | (unfold valid big at *; omega) | (unfold big at *; omega) | omega)
            have v0 : valid L (2 * k.val) := by unfold valid big at *; omega
            have v1 : ¬ valid L (2 * k.val + 1) := by unfold valid big at *; omega
            have v2 : ¬ valid L (2 * k.val + 2) := by unfold valid big at *; omega
            have v3' : ¬ valid L (2 * k.val + 3) := by unfold valid big at *; omega
            have hm0 : 2 ≤ 2 * k.val ∧ valid L (2 * k.val - 2) := ⟨by omega, by unfold valid big at *; omega⟩
            have hm1 : 2 ≤ 2 * k.val + 1 ∧ valid L (2 * k.val + 1 - 2) := ⟨by omega, by unfold valid big at *; omega⟩
            ihave S8 := (Entails.of_eq (inSlotV_pos d L fx v0)) $$ S8
            icases S8 with ⟨%g4, %hin4, F8⟩
            ihave S9 := (Entails.of_eq (inSlotV_neg d L fx v1)) $$ S9
            icases S9 with ⟨⟨%g5, H5⟩, F9⟩
            ihave S10 := (Entails.of_eq (outSlotV_pos d L fx hm0)) $$ S10
            icases S10 with ⟨%g6, F10, R6⟩
            ihave S11 := (Entails.of_eq (outSlotV_pos d L fx hm1)) $$ S11
            icases S11 with ⟨%g7, F11, R7⟩
            ihave HX := (Entails.of_eq (xSet_out (xP d L fx) k.val hk)) $$ HX
            icases HX with ⟨-, -, HX⟩
            ihave HOut := (Entails.of_eq (oSet_out (oMix d L fx k.val) k.val hk)) $$ HOut
            icases HOut with ⟨Y0, -, HOut⟩
            ihave Y0 := (Entails.of_eq ((oMix_ge d L fx (t := k.val) (n := 2 * k.val) (by omega)).trans (oP_pos (F := F) d L v0))) $$ Y0
            icases Y0 with ⟨%f0, Y0⟩
            ihave Y0 := (Entails.of_eq (out_congr d L (off_5 L k v0).symm (out_inb L _) (k18_off5_inb L k k18_h2) f0)) $$ Y0
            sl_exec
            sl_for (laneV0 d L g4) $$ [F8_dst R6]
            case region =>
              intro (j : Fin k18_t2_loop.trips) _
              unfold laneV0
              iintro ⟨HA, %g, HB, %hl⟩
              sl_exec
              sl_step
              isplitl [HA]; · iexact HA
              iexists _; isplitl [HB]; · iexact HB
              ipureintro; exact lanes_step d L a4 a6 g4 g j _ _ hl
            · unfold laneV0
              isplitl [F8_dst]; · iexact F8_dst
              iexists _; isplitl [R6]; · iexact R6
              ipureintro; exact lanes_zero d L a4 a6 g4 _
            iintro %_ HI
            unfold laneV0
            icases HI with ⟨H4, %g6', H6, %hl6⟩
            have hl6 : Lanes d L a4 a6 g4 g6' 200 := Eq.mp (congrArg (Lanes d L a4 a6 g4 g6') trips2) hl6
            sl_exec
            sl_step
            isplitr; · iexact Hmw
            isplitl [HO]
            · iexists _; isplitr
              rotate_left
              · iexact HO
              ipureintro; intro p hp
              rcases Finset.mem_insert.mp hp with rfl | hp
              · exact .inr rfl
              rcases Finset.mem_insert.mp hp with rfl | hp
              · exact .inr rfl
              rcases Finset.mem_insert.mp hp with rfl | hp
              · exact .inr rfl
              exact hW' p hp
            isplitl [HX F8_src]
            · iapply (Entails.of_eq (xSet_in (xP d L fx) k.val hk).symm)
              isplitl [F8_src]; · iapply (Entails.of_eq (xP_pos d L fx v0).symm); iexact F8_src
              isplitr; · iapply (Entails.of_eq (xP_neg d L fx v1).symm); iempintro
              iexact HX
            isplitl [HOut F10_dst F11_dst]
            · iapply (Entails.of_eq (oSet_in (oMix d L fx (k.val + 1)) k.val hk (by omega)).symm)
              isplitl [F10_dst]; · iapply (Entails.of_eq ((oMix_lt d L fx (t := k.val + 1) (n := 2 * k.val - 2) (by omega)).trans (oQ_pos d L fx hm0.2)).symm); iexact F10_dst
              isplitl [F11_dst]
              · iapply (Entails.of_eq ((oMix_lt d L fx (t := k.val + 1) (n := 2 * k.val - 1) (by omega)).trans (oQ_pos d L fx (n := 2 * k.val - 1) (by have := hm1.2; rwa [show 2 * k.val + 1 - 2 = 2 * k.val - 1 by omega] at this))).symm)
                iapply (Entails.of_eq (congrArg (oqPiece d L fx) (show 2 * k.val + 1 - 2 = 2 * k.val - 1 by omega))); iexact F11_dst
              iapply (Entails.of_eq (oMix_core d L fx k.val)); iexact HOut
            isplitl [H4 F8]
            · iapply (Entails.of_eq (congrArg (inSlotV d L fx a4 cc18_scratch4.sem) (show 2 * k.val + 2 = 2 * (k.val + 1) by ring)))
              iapply (Entails.of_eq (inSlotV_neg d L fx v2).symm)
              isplitl [H4]; · iexists _; iexact H4
              iexact F8
            isplitl [F10 H6]
            · iapply (Entails.of_eq (congrArg (outSlotV d L fx a6 cc18_scratch6.sem) (show 2 * k.val + 2 = 2 * (k.val + 1) by ring)))
              iapply (fl_outV d L fx (off_5 L k v0) (k18_off5_inb L k k18_h2) v0 a4 a6 cc18_scratch6.sem f0 g4 g6' hl6 hin4); iexists _
              isplitr
              rotate_left
              · isplitl [F10]; · iexact F10
                iexact H6
              ipureintro; intro y; rfl
            isplitl [H5 F9]
            · iapply (Entails.of_eq (congrArg (inSlotV d L fx a5 cc18_scratch5.sem) (show 2 * k.val + 3 = 2 * (k.val + 1) + 1 by ring)))
              iapply (Entails.of_eq (inSlotV_neg d L fx v3').symm)
              isplitl [H5]; · iexists _; iexact H5
              iexact F9
            · iapply (Entails.of_eq (outSlotV_neg d L fx (m := 2 * (k.val + 1) + 1) (by intro h; apply v1; have := h.2; rwa [show 2 * (k.val + 1) + 1 - 2 = 2 * k.val + 1 by omega] at this)).symm)
              isplitl [R7]; · iexists _; iexact R7
              iexact F11
    · have hk0 : k.val = 0 := by omega
      -- the first trip: nothing to drain
      have k18_h1 : ¬ k18_cond1 k = 1#1 := fun h => absurd ((cond1_iff k).mp h) (by omega)
      have k18_h2 : k18_cond2 L k = 1#1 := cond2_iff L k
      have k18_h3 : k18_cond3 L k = 1#1 := (cond3_iff L k).mpr (by omega)
      have k18_h4 : ¬ k18_cond4 k = 1#1 := fun h => absurd ((cond4_iff k).mp h) (by omega)
      have k18_h5 : k18_cond5 L k = 1#1 := (cond5_iff L k).mpr (by first | (unfold valid big at *; omega) | (unfold big at *; omega) | omega)
      have k18_h6 : k18_cond6 L k = 1#1 := (cond6_iff L k).mpr (by first | (unfold valid big at *; omega) | (unfold big at *; omega) | omega)
      have v0 : valid L (2 * k.val) := by unfold valid big at *; omega
      have v1 : valid L (2 * k.val + 1) := by unfold valid big at *; omega
      have v2 : valid L (2 * k.val + 2) := by unfold valid big at *; omega
      have v3' : valid L (2 * k.val + 3) := by unfold valid big at *; omega
      have hm0 : ¬ (2 ≤ 2 * k.val ∧ valid L (2 * k.val - 2)) := by omega
      have hm1 : ¬ (2 ≤ 2 * k.val + 1 ∧ valid L (2 * k.val + 1 - 2)) := by omega
      ihave S8 := (Entails.of_eq (inSlotV_pos d L fx v0)) $$ S8
      icases S8 with ⟨%g4, %hin4, F8⟩
      ihave S9 := (Entails.of_eq (inSlotV_pos d L fx v1)) $$ S9
      icases S9 with ⟨%g5, %hin5, F9⟩
      ihave S10 := (Entails.of_eq (outSlotV_neg d L fx hm0)) $$ S10
      icases S10 with ⟨⟨%g6, R6⟩, F10⟩
      ihave S11 := (Entails.of_eq (outSlotV_neg d L fx hm1)) $$ S11
      icases S11 with ⟨⟨%g7, R7⟩, F11⟩
      ihave HX := (Entails.of_eq (xSet_out (xP d L fx) k.val hk)) $$ HX
      icases HX with ⟨X2, X3, HX⟩
      ihave X2 := (Entails.of_eq (xP_pos d L fx v2)) $$ X2
      ihave X2 := (Entails.of_eq (in_congr d L (off_6 L k v2).symm (in_inb L _) (k18_off6_inb L k k18_h3) fx)) $$ X2
      ihave X3 := (Entails.of_eq (xP_pos d L fx v3')) $$ X3
      ihave X3 := (Entails.of_eq (in_congr d L (off_11 L k v3').symm (in_inb L _) (k18_off11_inb L k k18_h6) fx)) $$ X3
      ihave HOut := (Entails.of_eq (oSet_out (oMix d L fx k.val) k.val hk)) $$ HOut
      icases HOut with ⟨Y0, Y1, HOut⟩
      ihave Y0 := (Entails.of_eq ((oMix_ge d L fx (t := k.val) (n := 2 * k.val) (by omega)).trans (oP_pos (F := F) d L v0))) $$ Y0
      icases Y0 with ⟨%f0, Y0⟩
      ihave Y0 := (Entails.of_eq (out_congr d L (off_5 L k v0).symm (out_inb L _) (k18_off5_inb L k k18_h2) f0)) $$ Y0
      ihave Y1 := (Entails.of_eq ((oMix_ge d L fx (t := k.val) (n := 2 * k.val + 1) (by omega)).trans (oP_pos (F := F) d L v1))) $$ Y1
      icases Y1 with ⟨%f1, Y1⟩
      ihave Y1 := (Entails.of_eq (out_congr d L (off_10 L k v1).symm (out_inb L _) (k18_off10_inb L k k18_h5) f1)) $$ Y1
      sl_exec
      sl_for (laneV0 d L g4) $$ [F8_dst R6]
      case region =>
        intro (j : Fin k18_t2_loop.trips) _
        unfold laneV0
        iintro ⟨HA, %g, HB, %hl⟩
        sl_exec
        sl_step
        isplitl [HA]; · iexact HA
        iexists _; isplitl [HB]; · iexact HB
        ipureintro; exact lanes_step d L a4 a6 g4 g j _ _ hl
      · unfold laneV0
        isplitl [F8_dst]; · iexact F8_dst
        iexists _; isplitl [R6]; · iexact R6
        ipureintro; exact lanes_zero d L a4 a6 g4 _
      iintro %_ HI
      unfold laneV0
      icases HI with ⟨H4, %g6', H6, %hl6⟩
      have hl6 : Lanes d L a4 a6 g4 g6' 200 := Eq.mp (congrArg (Lanes d L a4 a6 g4 g6') trips2) hl6
      sl_exec
      sl_for (laneV1 d L g5) $$ [F9_dst R7]
      case region =>
        intro (j : Fin k18_t3_loop.trips) _
        unfold laneV1
        iintro ⟨HA, %g, HB, %hl⟩
        sl_exec
        sl_step
        isplitl [HA]; · iexact HA
        iexists _; isplitl [HB]; · iexact HB
        ipureintro; exact lanes_step' d L a5 a7 g5 g j _ _ hl
      · unfold laneV1
        isplitl [F9_dst]; · iexact F9_dst
        iexists _; isplitl [R7]; · iexact R7
        ipureintro; exact lanes_zero d L a5 a7 g5 _
      iintro %_ HI
      unfold laneV1
      icases HI with ⟨H5, %g7', H7, %hl7⟩
      have hl7 : Lanes d L a5 a7 g5 g7' 200 := Eq.mp (congrArg (Lanes d L a5 a7 g5 g7') trips3) hl7
      sl_exec
      sl_step
      isplitr; · iexact Hmw
      isplitl [HO]
      · iexists _; isplitr
        rotate_left
        · iexact HO
        ipureintro; intro p hp
        rcases Finset.mem_insert.mp hp with rfl | hp
        · exact .inr rfl
        rcases Finset.mem_insert.mp hp with rfl | hp
        · exact .inr rfl
        exact hW' p hp
      isplitl [HX F8_src F9_src]
      · iapply (Entails.of_eq (xSet_in (xP d L fx) k.val hk).symm)
        isplitl [F8_src]; · iapply (Entails.of_eq (xP_pos d L fx v0).symm); iexact F8_src
        isplitl [F9_src]; · iapply (Entails.of_eq (xP_pos d L fx v1).symm); iexact F9_src
        iexact HX
      isplitl [HOut]
      · iapply (Entails.of_eq (congrArg (fun s => bigSep s (oMix d L fx (k.val + 1))) (show oCore k.val = oSet (k.val + 1) by rw [hk0]; decide)))
        iapply (Entails.of_eq (oMix_core d L fx k.val)); iexact HOut
      isplitl [F8]
      · iapply (Entails.of_eq (congrArg (inSlotV d L fx a4 cc18_scratch4.sem) (show 2 * k.val + 2 = 2 * (k.val + 1) by ring)))
        iapply (fl_inV d L fx (off_6 L k v2) (k18_off6_inb L k k18_h3) v2 a4 cc18_scratch4.sem); iexists _, _
        isplitr
        rotate_left
        · iexact F8
        ipureintro; intro y; rfl
      isplitl [F10 H6]
      · iapply (Entails.of_eq (congrArg (outSlotV d L fx a6 cc18_scratch6.sem) (show 2 * k.val + 2 = 2 * (k.val + 1) by ring)))
        iapply (fl_outV d L fx (off_5 L k v0) (k18_off5_inb L k k18_h2) v0 a4 a6 cc18_scratch6.sem f0 g4 g6' hl6 hin4); iexists _
        isplitr
        rotate_left
        · isplitl [F10]; · iexact F10
          iexact H6
        ipureintro; intro y; rfl
      isplitl [F9]
      · iapply (Entails.of_eq (congrArg (inSlotV d L fx a5 cc18_scratch5.sem) (show 2 * k.val + 3 = 2 * (k.val + 1) + 1 by ring)))
        iapply (fl_inV d L fx (off_11 L k v3') (k18_off11_inb L k k18_h6) v3' a5 cc18_scratch5.sem); iexists _, _
        isplitr
        rotate_left
        · iexact F9
        ipureintro; intro y; rfl
      · iapply (Entails.of_eq (congrArg (outSlotV d L fx a7 cc18_scratch7.sem) (show 2 * k.val + 1 + 2 = 2 * (k.val + 1) + 1 by ring)))
        iapply (fl_outV d L fx (off_10 L k v1) (k18_off10_inb L k k18_h5) v1 a5 a7 cc18_scratch7.sem f1 g5 g7' hl7 hin5); iexists _
        isplitr
        rotate_left
        · isplitl [F11]; · iexact F11
          iexact H7
        ipureintro; intro y; rfl
  · unfold invV
    isplitr; · iexact Hmw
    isplitl [HO]
    · iexists W; isplitr
      · ipureintro; exact fun p hp => .inl hp
      · iexact HO
    isplitl [HX]; · iexact HX
    isplitl [HOut]; · iapply (Entails.of_eq (oMix_zero d L fx).symm); iexact HOut
    isplitl [S8]; · iexact S8
    isplitl [H6 Hs10]
    · rw [outSlotV_neg d L fx (by omega)]; isplitl [H6]; · iexists _; iexact H6
      iexact Hs10
    isplitl [S9]; · iexact S9
    rw [outSlotV_neg d L fx (by omega)]; isplitl [H7]; · iexists _; iexact H7
    iexact Hs11
  iintro %acc' HI
  ihave HI := (Entails.of_eq (congrArg (fun t => invV d L O W fx t acc') trips1)) $$ HI
  unfold invV
  icases HI with ⟨-, ⟨%W', %hW', HO⟩, HX, HOut, S8, S10, S9, S11⟩
  have nv16 : ¬ valid L (2 * 8) := by unfold valid; omega
  have nv17 : ¬ valid L (2 * 8 + 1) := by unfold valid; omega
  have hm14 : 2 ≤ 2 * 8 ∧ valid L (2 * 8 - 2) := ⟨by omega, Or.inl (by omega)⟩
  ihave S8 := (Entails.of_eq (inSlotV_neg d L fx nv16)) $$ S8
  icases S8 with ⟨⟨%g4', H4⟩, Hs8⟩
  ihave S9 := (Entails.of_eq (inSlotV_neg d L fx nv17)) $$ S9
  icases S9 with ⟨⟨%g5', H5⟩, Hs9⟩
  ihave S10 := (Entails.of_eq (outSlotV_pos d L fx hm14)) $$ S10
  icases S10 with ⟨%g6', F10, R6⟩
  by_cases hb : big L
  · have k18_h8 : k18_cond8 L = 1#1 := (cond8_iff L).mpr hb
    have hm15 : 2 ≤ 2 * 8 + 1 ∧ valid L (2 * 8 + 1 - 2) := ⟨by omega, Or.inr ⟨by omega, hb⟩⟩
    ihave S11 := (Entails.of_eq (outSlotV_pos d L fx hm15)) $$ S11
    icases S11 with ⟨%g7', F11, R7⟩
    sl_exec
    sl_step
    isplitl [HX]; · iapply (xRange_end d L fx); iexact HX
    isplitl [HOut F10_dst F11_dst]
    · iapply (Entails.of_eq (oRange_end (oQ d L fx)).symm)
      isplitl [F10_dst]; · iapply (Entails.of_eq (oQ_pos d L fx hm14.2).symm); iexact F10_dst
      isplitl [F11_dst]; · iapply (Entails.of_eq (oQ_pos d L fx hm15.2).symm); iexact F11_dst
      iapply (Entails.of_eq (oMix_end d L fx)); iexact HOut
    isplitl [H4]; · iexists _; iexact H4
    isplitl [H5]; · iexists _; iexact H5
    isplitl [R6]; · iexists _; iexact R6
    isplitl [R7]; · iexists _; iexact R7
    isplitl [Hs8]; · iexact Hs8
    isplitl [Hs9]; · iexact Hs9
    isplitl [F10]; · iexact F10
    isplitl [F11]; · iexact F11
    isplitl [HO]
    · iexists _; isplitr
      rotate_left
      · iexact HO
      ipureintro; intro p hp
      rcases Finset.mem_insert.mp hp with rfl | hp
      · exact .inr rfl
      rcases Finset.mem_insert.mp hp with rfl | hp
      · exact .inr rfl
      exact hW' p hp
    iexact HR
  · have k18_h8 : ¬ k18_cond8 L = 1#1 := fun h => hb ((cond8_iff L).mp h)
    have hm15 : ¬ (2 ≤ 2 * 8 + 1 ∧ valid L (2 * 8 + 1 - 2)) := by intro h; have := h.2; unfold valid at this; omega
    ihave S11 := (Entails.of_eq (outSlotV_neg d L fx hm15)) $$ S11
    icases S11 with ⟨⟨%g7', R7⟩, F11⟩
    sl_exec
    sl_step
    isplitl [HX]; · iapply (xRange_end d L fx); iexact HX
    isplitl [HOut F10_dst]
    · iapply (Entails.of_eq (oRange_end (oQ d L fx)).symm)
      isplitl [F10_dst]; · iapply (Entails.of_eq (oQ_pos d L fx hm14.2).symm); iexact F10_dst
      isplitr; · iapply (Entails.of_eq (oQ_neg d L fx (n := 15) (by unfold valid; omega)).symm); iempintro
      iapply (Entails.of_eq (oMix_end d L fx)); iexact HOut
    isplitl [H4]; · iexists _; iexact H4
    isplitl [H5]; · iexists _; iexact H5
    isplitl [R6]; · iexists _; iexact R6
    isplitl [R7]; · iexists _; iexact R7
    isplitl [Hs8]; · iexact Hs8
    isplitl [Hs9]; · iexact Hs9
    isplitl [F10]; · iexact F10
    isplitl [F11]; · iexact F11
    isplitl [HO]
    · iexists _; isplitr
      rotate_left
      · iexact HO
      ipureintro; intro p hp
      rcases Finset.mem_insert.mp hp with rfl | hp
      · exact .inr rfl
      exact hW' p hp
    iexact HR

/-! The subcore's scoped storage: the four staging buffers and the four semaphores of this call, and the rest. -/

abbrev c8 : GSem nD τ sig := (thr d L, SemLoc.dma cc18_scratch4.sem)
abbrev c9 : GSem nD τ sig := (thr d L, SemLoc.dma cc18_scratch5.sem)
abbrev c10 : GSem nD τ sig := (thr d L, SemLoc.dma cc18_scratch6.sem)
abbrev c11 : GSem nD τ sig := (thr d L, SemLoc.dma cc18_scratch7.sem)

omit [FloatOps F] in
theorem ownSems0_V :
    (ownSems0 (thr d L) : sProp 𝕄)
      = iprop(semVal (c8 d L) 0 ∗ semVal (c9 d L) 0 ∗ semVal (c10 d L) 0 ∗ semVal (c11 d L) 0
          ∗ bigSep (((((ownCells (thr d L)).erase (c8 d L)).erase (c9 d L)).erase (c10 d L)).erase (c11 d L)) fun g => semVal g 0) := by
  unfold SparseCore.Cfg.ownSems0
  rw [SparseCore.bigSep_erase' ((mem_ownCells (g := c8 d L)).mpr ⟨rfl, by
      show (SemLoc.dma cc18_scratch4.sem : SemLoc sig).isScoped .scVector = true; decide⟩),
    SparseCore.bigSep_erase' (Finset.mem_erase.mpr ⟨fun e => absurd (Prod.mk.inj e).2 (by decide), (mem_ownCells (g := c9 d L)).mpr ⟨rfl, by
      show (SemLoc.dma cc18_scratch5.sem : SemLoc sig).isScoped .scVector = true; decide⟩⟩),
    SparseCore.bigSep_erase' (Finset.mem_erase.mpr ⟨fun e => absurd (Prod.mk.inj e).2 (by decide), Finset.mem_erase.mpr ⟨fun e => absurd (Prod.mk.inj e).2 (by decide),
      (mem_ownCells (g := c10 d L)).mpr ⟨rfl, by show (SemLoc.dma cc18_scratch6.sem : SemLoc sig).isScoped .scVector = true; decide⟩⟩⟩),
    SparseCore.bigSep_erase' (Finset.mem_erase.mpr ⟨fun e => absurd (Prod.mk.inj e).2 (by decide), Finset.mem_erase.mpr ⟨fun e => absurd (Prod.mk.inj e).2 (by decide),
      Finset.mem_erase.mpr ⟨fun e => absurd (Prod.mk.inj e).2 (by decide),
      (mem_ownCells (g := c11 d L)).mpr ⟨rfl, by show (SemLoc.dma cc18_scratch7.sem : SemLoc sig).isScoped .scVector = true; decide⟩⟩⟩⟩)]

abbrev pV (L : grid18.Coords) : Proc τ := Proc.scVector (cV L) (jV L)

omit [FloatOps F] in
theorem ownBufs_V :
    (ownBufs (thr d L) : sProp 𝕄)
      = iprop((∃ f, (thr d L).loc cc18_scratch0 ↦{fullShare} f) ∗ (∃ f, (thr d L).loc cc18_scratch1 ↦{fullShare} f)
          ∗ (∃ f, (thr d L).loc cc18_scratch2 ↦{fullShare} f) ∗ (∃ f, (thr d L).loc cc18_scratch3 ↦{fullShare} f)
          ∗ bigSep (((((ownRefs (τ := τ) (pV L)).erase ((pV L).devRef cc18_scratch0)).erase ((pV L).devRef cc18_scratch1)).erase
              ((pV L).devRef cc18_scratch2)).erase ((pV L).devRef cc18_scratch3))
              fun b => iprop(∃ f, ((d, b) : Loc nD τ sig) ↦{fullShare} f)) := by
  unfold SparseCore.Cfg.ownBufs
  refine (SparseCore.bigSep_erase' (SparseCore.Cfg.mem_ownRefs_of_owner (p := pV L) (b := (pV L).devRef cc18_scratch0) rfl)).trans ?_
  rw [SparseCore.bigSep_erase' (Finset.mem_erase.mpr ⟨fun e => absurd (Proc.devRef_injective _ e) (show (cc18_scratch1 : Ref sig .scVector) ≠ cc18_scratch0 by decide),
      SparseCore.Cfg.mem_ownRefs_of_owner (p := pV L) (b := (pV L).devRef cc18_scratch1) rfl⟩),
    SparseCore.bigSep_erase' (Finset.mem_erase.mpr ⟨fun e => absurd (Proc.devRef_injective _ e) (show (cc18_scratch2 : Ref sig .scVector) ≠ cc18_scratch1 by decide),
      Finset.mem_erase.mpr ⟨fun e => absurd (Proc.devRef_injective _ e) (show (cc18_scratch2 : Ref sig .scVector) ≠ cc18_scratch0 by decide),
      SparseCore.Cfg.mem_ownRefs_of_owner (p := pV L) (b := (pV L).devRef cc18_scratch2) rfl⟩⟩),
    SparseCore.bigSep_erase' (Finset.mem_erase.mpr ⟨fun e => absurd (Proc.devRef_injective _ e) (show (cc18_scratch3 : Ref sig .scVector) ≠ cc18_scratch2 by decide),
      Finset.mem_erase.mpr ⟨fun e => absurd (Proc.devRef_injective _ e) (show (cc18_scratch3 : Ref sig .scVector) ≠ cc18_scratch1 by decide),
      Finset.mem_erase.mpr ⟨fun e => absurd (Proc.devRef_injective _ e) (show (cc18_scratch3 : Ref sig .scVector) ≠ cc18_scratch0 by decide),
      SparseCore.Cfg.mem_ownRefs_of_owner (p := pV L) (b := (pV L).devRef cc18_scratch3) rfl⟩⟩⟩)]

/-- The rest of the subcore's scoped storage, which the task does not touch. -/
def restR : sProp 𝕄 :=
  iprop((bigSep (((((ownRefs (τ := τ) (pV L)).erase ((pV L).devRef cc18_scratch0)).erase ((pV L).devRef cc18_scratch1)).erase
              ((pV L).devRef cc18_scratch2)).erase ((pV L).devRef cc18_scratch3))
              fun b => iprop(∃ f, ((d, b) : Loc nD τ sig) ↦{fullShare} f))
      ∗ bigSep (((((ownCells (thr d L)).erase (c8 d L)).erase (c9 d L)).erase (c10 d L)).erase (c11 d L)) fun g => semVal g 0)

theorem body_pre (hO : ∀ g, O g none = 0) :
    iprop(levAts (K (F := F)).L (K (F := F)).lev ∗ emp ∗ goRes d L fx ∗ ownBufs (thr d L) ∗ ownSems0 (thr d L) ∗ owes (thr d L) O W)
      ⊢ runPre d L O W fx (restR (F := F) d L) := by
  rw [ownSems0_V, ownBufs_V]
  unfold goRes runPre restR
  iintro ⟨#Hlv, -, ⟨HX, HOut⟩, ⟨H4, H5, H6, H7, Hbufs⟩, ⟨Hs8, Hs9, Hs10, Hs11, Hsems⟩, HO⟩
  ihave Hmw := ((K (F := F)).mayWaits_none (thr := thr d L) hO) $$ Hlv
  isplitr; · iexact Hmw
  isplitl [HO]; · iexact HO
  isplitl [HX]; · iexact HX
  isplitl [HOut]; · iexact HOut
  isplitl [H4]; · iexact H4
  isplitl [H5]; · iexact H5
  isplitl [H6]; · iexact H6
  isplitl [H7]; · iexact H7
  isplitl [Hs8]; · iexact Hs8
  isplitl [Hs9]; · iexact Hs9
  isplitl [Hs10]; · iexact Hs10
  isplitl [Hs11]; · iexact Hs11
  isplitl [Hbufs]; · iexact Hbufs
  iexact Hsems

theorem body_post :
    runPost d L O W fx (restR (F := F) d L)
      ⊢ iprop(tdRes d L fx ∗ ownBufs (thr d L) ∗ ownSems0 (thr d L) ∗ ∃ W', ⌜∀ p ∈ W', p ∈ W ∨ p.2 = none⌝ ∗ owes (thr d L) O W') := by
  rw [ownSems0_V, ownBufs_V]
  unfold tdRes runPost restR
  iintro ⟨HX, HOut, H4, H5, H6, H7, Hs8, Hs9, Hs10, Hs11, HW, Hbufs, Hsems⟩
  isplitl [HX HOut]
  · isplitl [HX]; · iexact HX
    iexact HOut
  isplitl [H4 H5 H6 H7 Hbufs]
  · isplitl [H4]; · iexact H4
    isplitl [H5]; · iexact H5
    isplitl [H6]; · iexact H6
    isplitl [H7]; · iexact H7
    iexact Hbufs
  isplitl [Hs8 Hs9 Hs10 Hs11 Hsems]
  · isplitl [Hs8]; · iexact Hs8
    isplitl [Hs9]; · iexact Hs9
    isplitl [Hs10]; · iexact Hs10
    isplitl [Hs11]; · iexact Hs11
    iexact Hsems
  iexact HW

/-- The task in the launch theorem's shape: from what the call hands the tile and the subcore's scoped storage to
    what the tile hands back and the storage again. -/
theorem tile_body (hF : (K (F := F)).Facts) (hO : ∀ g, O g none = 0) :
    iprop(levAts (K (F := F)).L (K (F := F)).lev ∗ emp ∗ goRes d L fx ∗ scopedBufs (thr d L) ∗ scopedSems0 (thr d L) ∗ owes (thr d L) O W)
      ⊢ wp frame (wpE (defs₀ (F := F)) 𝒱₀ (thr d L) none) Set.univ
          (cc18_sc_group L xtW (Memref.isWhole_whole _) oW (Memref.isWhole_whole _) a4 (Memref.isWhole_whole _) a5 (Memref.isWhole_whole _)
            a6 (Memref.isWhole_whole _) a7 (Memref.isWhole_whole _) cc18_scratch4 cc18_scratch5 cc18_scratch6 cc18_scratch7)
          fun _ => iprop(tdRes d L fx ∗ scopedBufs (thr d L) ∗ scopedSems0 (thr d L)
            ∗ ∃ W', ⌜∀ p ∈ W', p ∈ W ∨ p.2 = none⌝ ∗ owes (thr d L) O W') := by
  rw [(K (F := F)).scopedBufs_V hF d (cV L) (jV L), SparseCore.Cfg.scopedSems0_V (Val := Elt F) d (cV L) (jV L)]
  exact (body_pre d L O W fx hO).trans ((tile_run d L O W fx (restR (F := F) d L)).trans (wp_mono frame _ _ fun _ => body_post d L O W fx))

end Tile

end Cert.Proof.TileB18

end
-- ==== Proof.TileVal19.lean ====
/-
  What the staging buffers of one vector subcore hold while it copies a piece of 3200 consecutive elements of row 19 of
  the transposed argument into the flat result, read index by index. No program and no ownership here: only the contents.

  A transfer lands the piece in row 0 of an 8 × 3200 staging array (`InRow`: position (0, t) of that row holds element
  (0, pos + t) of the transposed argument, `pos` the piece's first column). A loop of 200 trips copies that row, 16 lanes
  per trip, into the first 3200 elements of a flat staging array of 25600: trip `j` reads the 1 × 16 window at columns
  [16 j, 16 j + 16) of row 0 and writes it, flattened, at elements [16 j, 16 j + 16). After `j` trips the first 16 j
  elements of the flat array are the first 16 j elements of the row (`Lanes`); a trip extends the prefix by 16
  (`lanes_step`: an element below 16 j is outside the window written and keeps its value, an element of the window reads
  the lane written there, which is the row's element at the same column). A second transfer writes the first 3200
  elements of the flat array to the piece of the result at the same `pos`; so every element of that piece of the result
  holds the element of row 19 of the transposed argument at its own position (`out_written`): the composite of the three
  index maps t ↦ (0, pos + t) ↦ (0, t) ↦ t ↦ pos + t is the identity on positions of the row.
-/
import proofs.«206869_g37898791420194_cont_8to1_b_558_20_alg».proof.Proof.TileK19Defs
import proofs.«206869_g37898791420194_cont_8to1_b_558_20_alg».proof.Proof.Spec
import Idealize.ShloMosaic.Lib.WritesUnit
import Idealize.ShloMosaic.Lib.ValueLayout

noncomputable section

namespace Cert.Proof.TileVal19

open Cert.Proof.TileK19 Cert.KernelIdeal Cert.KernelIdeal.Gen
open Idealize.ShloMosaic Idealize.ShloMosaic.ValueIdx

variable {F : FTy → Type} [FloatOps F]
variable (d : Dev nD) (L : grid19.Coords)
variable (fx : Buf (Elt F) ((Memref.whole main_v0_scv : Memref sig .scVector .hbm S22x1600000 .f32).view.loc (thr d L)))

abbrev rowRect : Rect S8x3200 := Rect.unit (s := S8x3200) ![0, 0] S1x3200.size inb_S8x3200_S1x3200_0_0

/-- row 0 of the staging array is piece n of the argument row -/
def InRow (a : Memref sig .scVector .vmem S8x3200 .f32) (ga : Buf (Elt F) (a.view.loc (thr d L))) (n : ℕ) : Prop :=
  ∀ y : S1x3200.Idx, a.view.read (Elt F) ga (rowRect.emb y) = (inM L n).view.read (Elt F) fx y

theorem inRow_fetch (a : Memref sig .scVector .vmem S8x3200 .f32) (gold : Buf (Elt F) (a.view.loc (thr d L)))
    (w : S1x3200.Idx → Elt F .f32) (n : ℕ) (hw : ∀ y, w y = (inM L n).view.read (Elt F) fx y) :
    InRow d L fx a (a.view.writes (Elt F) gold [⟨rowRect, w⟩]) n :=
  fun y => (View.read_writes_cons_emb a.view gold rowRect w [] y).trans (hw y)

def Lanes (a : Memref sig .scVector .vmem S8x3200 .f32) (b : Memref sig .scVector .vmem S25600 .f32)
    (ga : Buf (Elt F) (a.view.loc (thr d L))) (gb : Buf (Elt F) (b.view.loc (thr d L))) (j : ℕ) : Prop :=
  ∀ (r : ℕ) (hr : r < 3200), r < 16 * j →
    b.view.read (Elt F) gb (ix1 (⟨r, by omega⟩ : Fin 25600)) = a.view.read (Elt F) ga (ix2 (0 : Fin 8) (⟨r, hr⟩ : Fin 3200))

theorem lanes_zero (a : Memref sig .scVector .vmem S8x3200 .f32) (b : Memref sig .scVector .vmem S25600 .f32)
    (ga : Buf (Elt F) (a.view.loc (thr d L))) (gb : Buf (Elt F) (b.view.loc (thr d L))) : Lanes d L a b ga gb 0 := by
  intro r hr h; omega

/-- The 1 × 16 window at column `c` of the staging array, read at lane `t`, is element `(0, c + t)`. -/
theorem idx_window {off : Fin 2 → ℕ} {c : ℕ} (h : off = ![0, c]) (p : ∀ a', off a' + S1x16.size a' ≤ S8x3200.size a')
    (t : Fin 16) (hr : c + t.val < 3200) :
    (Rect.unit (s := S8x3200) off S1x16.size p).toLoadRect.idx (ix2 (0 : Fin 1) t) = ix2 (0 : Fin 8) (⟨c + t.val, hr⟩ : Fin 3200) := by
  subst h
  funext a'; apply Fin.ext
  rw [LoadRect.idx_apply]
  match a' with
  | ⟨0, _⟩ => show 0 + 1 * 0 = 0; omega
  | ⟨1, _⟩ => show c + 1 * t.val = c + t.val; omega

/-- One trip of a lane-copy loop, the offsets given by their closed forms. -/
theorem lanes_step_core (a : Memref sig .scVector .vmem S8x3200 .f32) (b : Memref sig .scVector .vmem S25600 .f32)
    (ga : Buf (Elt F) (a.view.loc (thr d L))) (gb : Buf (Elt F) (b.view.loc (thr d L)))
    (t : ℕ) {off3 : Fin 2 → ℕ} {off4 : Fin 1 → ℕ} (h3 : off3 = ![0, 16 * t]) (h4 : off4 = ![16 * t])
    (p3 : ∀ a', off3 a' + S1x16.size a' ≤ S8x3200.size a') (p4 : ∀ a', off4 a' + S16.size a' ≤ S25600.size a')
    (h : Lanes d L a b ga gb t) :
    Lanes d L a b ga (b.view.writes (Elt F) gb [⟨Rect.unit (s := S25600) off4 S16.size p4,
      shapeCast S16 (a.view.readAt (Elt F) (Rect.unit (s := S8x3200) off3 S1x16.size p3).toLoadRect ga) shapeCasts_S1x16_S16⟩]) (t + 1) := by
  intro r hr hlt
  by_cases hlo : r < 16 * t
  · refine (View.read_writes_cons_unit_of_not_mem b.view gb p4 _ [] _ h4 (0 : Fin 1) (Or.inl ?_)).trans (h r hr hlo)
    show r < 16 * t
    exact hlo
  · have hx : r - 16 * t < 16 := by omega
    refine (View.read_writes_cons_unit_of_mem b.view gb p4 _ [] _ (ix1 (⟨r - 16 * t, hx⟩ : Fin 16)) h4 ?_).trans ?_
    · intro a'
      match a' with
      | ⟨0, _⟩ => show r = 16 * t + (r - 16 * t); omega
    · rw [shapeCast_1a_a_apply, View.readAt_apply, idx_window h3 p3 ⟨r - 16 * t, hx⟩ (by show 16 * t + (r - 16 * t) < 3200; omega)]
      congr 2
      apply Fin.ext
      show 16 * t + (r - 16 * t) = r
      omega

theorem lanes_step (a : Memref sig .scVector .vmem S8x3200 .f32) (b : Memref sig .scVector .vmem S25600 .f32)
    (ga : Buf (Elt F) (a.view.loc (thr d L))) (gb : Buf (Elt F) (b.view.loc (thr d L)))
    (j : Fin k19_t2_loop.trips) (p3 : ∀ a', (k19_off3 j) a' + S1x16.size a' ≤ S8x3200.size a')
    (p4 : ∀ a', (k19_off4 j) a' + S16.size a' ≤ S25600.size a') (h : Lanes d L a b ga gb j.val) :
    Lanes d L a b ga (b.view.writes (Elt F) gb [⟨Rect.unit (s := S25600) (k19_off4 j) S16.size p4,
      k19_pay1 (a.view.readAt (Elt F) (Rect.unit (s := S8x3200) (k19_off3 j) S1x16.size p3).toLoadRect ga)⟩]) (j.val + 1) :=
  lanes_step_core d L a b ga gb j.val (k19_off3_eq j) (k19_off4_eq j) p3 p4 h

theorem lanes_step' (a : Memref sig .scVector .vmem S8x3200 .f32) (b : Memref sig .scVector .vmem S25600 .f32)
    (ga : Buf (Elt F) (a.view.loc (thr d L))) (gb : Buf (Elt F) (b.view.loc (thr d L)))
    (j : Fin k19_t3_loop.trips) (p3 : ∀ a', (k19_off8 j) a' + S1x16.size a' ≤ S8x3200.size a')
    (p4 : ∀ a', (k19_off9 j) a' + S16.size a' ≤ S25600.size a') (h : Lanes d L a b ga gb j.val) :
    Lanes d L a b ga (b.view.writes (Elt F) gb [⟨Rect.unit (s := S25600) (k19_off9 j) S16.size p4,
      k19_pay2 (a.view.readAt (Elt F) (Rect.unit (s := S8x3200) (k19_off8 j) S1x16.size p3).toLoadRect ga)⟩]) (j.val + 1) :=
  lanes_step_core d L a b ga gb j.val (k19_off8_eq j) (k19_off9_eq j) p3 p4 h

/-- Position `y` of the write-out window of the flat staging array is its element `y 0`. -/
theorem stg_emb (y : S3200.Idx) (hy : (y 0).val < 25600) :
    (Rect.unit (s := S25600) ![0] S3200.size inb_S25600_S3200_0).emb y = ix1 (⟨(y 0).val, hy⟩ : Fin 25600) := by
  funext a'; apply Fin.ext
  match a' with
  | ⟨0, _⟩ => show 0 + 1 * (y 0).val = (y 0).val; omega

/-- Position `(0, t)` of row 0 of the staging array is its element `(0, t)`. -/
theorem row_emb (t : Fin 3200) : rowRect.emb (ix2 (0 : Fin 1) t) = ix2 (0 : Fin 8) t := by
  funext a'; apply Fin.ext
  match a' with
  | ⟨0, _⟩ => show 0 + 1 * 0 = 0; omega
  | ⟨1, _⟩ => show 0 + 1 * t.val = t.val; omega

/-- Position `(0, t)` of piece `n` of the argument row is element `(0, pos + t)` of the transposed argument;
    position `y` of piece `n` of the result is element `pos + y 0` of the result. -/
theorem in_emb (n : ℕ) (t : Fin 3200) (h : pos L n + t.val < 1600000) :
    (inM L n).view.emb (ix2 (0 : Fin 1) t) = ix2 (19 : Fin 22) (⟨pos L n + t.val, h⟩ : Fin 1600000) := by
  funext a'; apply Fin.ext
  match a' with
  | ⟨0, _⟩ => show 19 + 1 * 0 = 19; omega
  | ⟨1, _⟩ => show pos L n + 1 * t.val = pos L n + t.val; omega

theorem out_emb (n : ℕ) (y : S3200.Idx) (h : pos L n + (y 0).val < 1600000) :
    (outM L n).view.emb y = ix1 (⟨pos L n + (y 0).val, h⟩ : Fin 1600000) := by
  funext a'; apply Fin.ext
  match a' with
  | ⟨0, _⟩ => show pos L n + 1 * (y 0).val = pos L n + (y 0).val; omega

/-- Both lane-copy loops run 200 trips: 200 · 16 = 3200, the whole row. -/
theorem trips2 : k19_t2_loop.trips = 200 := by decide
theorem trips3 : k19_t3_loop.trips = 200 := by decide

/-- After all its trips a lane-copy loop has copied the whole row. -/
theorem lanes_all (a : Memref sig .scVector .vmem S8x3200 .f32) (b : Memref sig .scVector .vmem S25600 .f32)
    (ga : Buf (Elt F) (a.view.loc (thr d L))) (gb : Buf (Elt F) (b.view.loc (thr d L)))
    (h : Lanes d L a b ga gb k19_t2_loop.trips) : Lanes d L a b ga gb 200 := trips2 ▸ h
theorem lanes_all' (a : Memref sig .scVector .vmem S8x3200 .f32) (b : Memref sig .scVector .vmem S25600 .f32)
    (ga : Buf (Elt F) (a.view.loc (thr d L))) (gb : Buf (Elt F) (b.view.loc (thr d L)))
    (h : Lanes d L a b ga gb k19_t3_loop.trips) : Lanes d L a b ga gb 200 := trips3 ▸ h

/-- The write-out of a piece: the first 3200 elements of the flat staging array, which the 200 lane copies filled from
    row 0 of the staging array, which the fetch filled from piece `n` of row 19 of the transposed argument, land at
    piece `n` of the result, at the same positions of the row. -/
theorem out_written (a : Memref sig .scVector .vmem S8x3200 .f32) (b : Memref sig .scVector .vmem S25600 .f32) (n : ℕ)
    (ga : Buf (Elt F) (a.view.loc (thr d L))) (gb : Buf (Elt F) (b.view.loc (thr d L)))
    (f0 : Buf (Elt F) ((outM L n).view.loc (thr d L))) (w : S3200.Idx → Elt F .f32)
    (hw : ∀ y, w y = (stg b).view.read (Elt F) gb y) (hl : Lanes d L a b ga gb 200) (hr : InRow d L fx a ga n) (hv : valid L n) :
    ∀ i ∈ (outM L n).view.set, ((outM L n).view.writes (Elt F) f0 [⟨Rect.whole _, w⟩]) i = Cert.Spec.row 19 fx i := by
  intro i hi
  obtain ⟨y, -, rfl⟩ := Finset.mem_map.mp hi
  have hy : (y 0).val < 3200 := (y 0).isLt
  have hp : pos L n + (y 0).val < 1600000 := by unfold pos; omega
  have e1 : (outM L n).view.writes (Elt F) f0 [⟨Rect.whole _, w⟩] ((outM L n).view.emb y) = w y := by
    have h := View.read_writes_cons_emb (outM L n).view f0 (Rect.whole _) w [] y
    rw [Rect.emb_whole_apply] at h
    exact (cast_eq _ _).symm.trans ((View.read_apply _ _).symm.trans h)
  have e2 : (stg b).view.read (Elt F) gb y = b.view.read (Elt F) gb (ix1 (⟨(y 0).val, by omega⟩ : Fin 25600)) :=
    congrArg (b.view.read (Elt F) gb) (stg_emb y (by omega))
  have e3 : a.view.read (Elt F) ga (ix2 (0 : Fin 8) (⟨(y 0).val, hy⟩ : Fin 3200))
      = (inM L n).view.read (Elt F) fx (ix2 (0 : Fin 1) (⟨(y 0).val, hy⟩ : Fin 3200)) :=
    (congrArg (a.view.read (Elt F) ga) (row_emb ⟨(y 0).val, hy⟩).symm).trans (hr _)
  have e4 : (inM L n).view.read (Elt F) fx (ix2 (0 : Fin 1) (⟨(y 0).val, hy⟩ : Fin 3200))
      = fx (ix2 (19 : Fin 22) (⟨pos L n + (y 0).val, hp⟩ : Fin 1600000)) :=
    ((View.read_apply _ _).trans (cast_eq _ _)).trans (congrArg fx (in_emb L n ⟨(y 0).val, hy⟩ hp))
  have e5 : Cert.Spec.row 19 fx ((outM L n).view.emb y) = fx (ix2 (19 : Fin 22) (⟨pos L n + (y 0).val, hp⟩ : Fin 1600000)) :=
    (congrArg (Cert.Spec.row 19 fx) (out_emb L n y hp)).trans (Cert.Spec.row_apply 19 fx _)
  exact e1.trans ((hw y).trans (e2.trans ((hl _ hy (by omega)).trans (e3.trans (e4.trans e5.symm)))))

end Cert.Proof.TileVal19

end
-- ==== Proof.TileK19.lean ====
/-
  One vector subcore's task of copy kernel 19 (counting from 0), run symbolically: the two fetch slots and two write-out slots
  between trips of the main loop (what each transfer in flight will hand back, and what the staging buffers hold), the
  invariant of the main loop and of the two lane-copy loops, and the task's run — from the tile's pieces of row 19 of
  the transposed argument and of the result to the same pieces with the result holding the row's elements.
-/
import proofs.«206869_g37898791420194_cont_8to1_b_558_20_alg».proof.Proof.TileK19Defs
import proofs.«206869_g37898791420194_cont_8to1_b_558_20_alg».proof.Proof.TileVal19
noncomputable section

namespace Cert.Proof.TileK19

open Cert.KernelIdeal Cert.KernelIdeal.Gen Cert.Proof.TileVal19
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 22) (Elt F) ℕ UU ℕ
local notation "xtW" => (Memref.whole Cert.KernelIdeal.main_v0_scv : Memref Cert.KernelIdeal.sig Kind.scVector Space.hbm Cert.KernelIdeal.S22x1600000 EltTy.f32)
local notation "oW" => (Memref.whole Cert.KernelIdeal.main_v20_scv : Memref Cert.KernelIdeal.sig Kind.scVector Space.hbm Cert.KernelIdeal.S1600000 EltTy.f32)
local notation "a4" => (Memref.whole Cert.KernelIdeal.cc19_scratch0 : Memref Cert.KernelIdeal.sig Kind.scVector Space.vmem Cert.KernelIdeal.S8x3200 EltTy.f32)
local notation "a5" => (Memref.whole Cert.KernelIdeal.cc19_scratch1 : Memref Cert.KernelIdeal.sig Kind.scVector Space.vmem Cert.KernelIdeal.S8x3200 EltTy.f32)
local notation "a6" => (Memref.whole Cert.KernelIdeal.cc19_scratch2 : Memref Cert.KernelIdeal.sig Kind.scVector Space.vmem Cert.KernelIdeal.S25600 EltTy.f32)
local notation "a7" => (Memref.whole Cert.KernelIdeal.cc19_scratch3 : Memref Cert.KernelIdeal.sig Kind.scVector Space.vmem Cert.KernelIdeal.S25600 EltTy.f32)

variable [FloatOps F]

section Tile

variable (d : Dev nD) (L : grid19.Coords)
variable (O : CellTallies nD τ sig (HIx 22)) (W : Waits sig (HIx 22))
variable (fx : Buf (Elt F) ((xtW).view.loc (thr d L)))

/-- Piece `n` of the result at its final contents. -/
abbrev oqPiece (n : ℕ) : sProp 𝕄 := (outM L n).view.loc (thr d L) ↦[(outM L n).view.set]{fullShare} (Cert.Spec.row 19 fx)
theorem oQ_pos {n : ℕ} (v : valid L n) : oQ d L fx n = oqPiece d L fx n := if_pos v
theorem oQ_neg {n : ℕ} (v : ¬ valid L n) : oQ d L fx n = iprop(emp) := if_neg v

/-- A fetch slot, remembering that the staging row it will hand back holds the piece. -/
def inSlotV (a : Memref sig .scVector .vmem S8x3200 .f32) (sm : DmaSem sig) (n : ℕ) : sProp 𝕄 :=
  if valid L n then
    iprop(∃ g, ⌜InRow d L fx a g n⌝ ∗ Transfers.Flight countersEmb (thr d L) (SemLoc.dma sm) (default : HIx 22) NN
      iprop((a.view.loc (thr d L) ↦{fullShare} g) ∗ xtPiece d L fx n))
  else iprop((∃ g, a.view.loc (thr d L) ↦{fullShare} g) ∗ semVal (thr d L, SemLoc.dma sm) 0)

/-- A write-out slot: the piece in flight will come back holding the row's elements. -/
def outSlotV (a : Memref sig .scVector .vmem S25600 .f32) (sm : DmaSem sig) (m : ℕ) : sProp 𝕄 :=
  if 2 ≤ m ∧ valid L (m - 2) then
    iprop(∃ g, Transfers.Flight countersEmb (thr d L) (SemLoc.dma sm) (default : HIx 22) NN
        iprop(oqPiece d L fx (m - 2) ∗ ((stg a).view.loc (thr d L) ↦[(stg a).view.set]{fullShare} g))
      ∗ (a.view.loc (thr d L) ↦[Finset.univ \ (stg a).view.set]{fullShare} g))
  else iprop((∃ g, a.view.loc (thr d L) ↦{fullShare} g) ∗ semVal (thr d L, SemLoc.dma sm) 0)

theorem inSlotV_pos {a : Memref sig .scVector .vmem S8x3200 .f32} {sm : DmaSem sig} {n : ℕ} (v : valid L n) :
    inSlotV d L fx a sm n = iprop(∃ g, ⌜InRow d L fx a g n⌝ ∗ Transfers.Flight countersEmb (thr d L) (SemLoc.dma sm) (default : HIx 22) NN
      iprop((a.view.loc (thr d L) ↦{fullShare} g) ∗ xtPiece d L fx n)) := by unfold inSlotV; rw [if_pos v]
theorem inSlotV_neg {a : Memref sig .scVector .vmem S8x3200 .f32} {sm : DmaSem sig} {n : ℕ} (v : ¬ valid L n) :
    inSlotV d L fx a sm n = iprop((∃ g, a.view.loc (thr d L) ↦{fullShare} g) ∗ semVal (thr d L, SemLoc.dma sm) 0) := by
  unfold inSlotV; rw [if_neg v]
theorem outSlotV_pos {a : Memref sig .scVector .vmem S25600 .f32} {sm : DmaSem sig} {m : ℕ} (h : 2 ≤ m ∧ valid L (m - 2)) :
    outSlotV d L fx a sm m = iprop(∃ g, Transfers.Flight countersEmb (thr d L) (SemLoc.dma sm) (default : HIx 22) NN
        iprop(oqPiece d L fx (m - 2) ∗ ((stg a).view.loc (thr d L) ↦[(stg a).view.set]{fullShare} g))
      ∗ (a.view.loc (thr d L) ↦[Finset.univ \ (stg a).view.set]{fullShare} g)) := by unfold outSlotV; rw [if_pos h]
theorem outSlotV_neg {a : Memref sig .scVector .vmem S25600 .f32} {sm : DmaSem sig} {m : ℕ} (h : ¬ (2 ≤ m ∧ valid L (m - 2))) :
    outSlotV d L fx a sm m = iprop((∃ g, a.view.loc (thr d L) ↦{fullShare} g) ∗ semVal (thr d L, SemLoc.dma sm) 0) := by
  unfold outSlotV; rw [if_neg h]

/-- A fetch just issued: the staging row will hold what the transfer reads, which is the piece. -/
theorem fl_inV {off : Fin 2 → ℕ} {n : ℕ} (h : off = ![19, pos L n]) (p : ∀ a, off a + S1x3200.size a ≤ S22x1600000.size a) (v : valid L n)
    (a : Memref sig .scVector .vmem S8x3200 .f32) (sm : DmaSem sig) :
    (iprop(∃ (gold : Buf (Elt F) (a.view.loc (thr d L))) (w : S1x3200.Idx → Elt F .f32),
        ⌜∀ y, w y = ((xtW).slice (Rect.unit (s := S22x1600000) off S1x3200.size p) (fun _ => rfl)).view.read (Elt F) fx y⌝
        ∗ Transfers.Flight countersEmb (thr d L) (SemLoc.dma sm) (default : HIx 22) NN
          iprop((a.view.loc (thr d L) ↦{fullShare} a.view.writes (Elt F) gold [⟨rowRect, w⟩])
            ∗ (((xtW).slice (Rect.unit (s := S22x1600000) off S1x3200.size p) (fun _ => rfl)).view.loc (thr d L)
                ↦[((xtW).slice (Rect.unit (s := S22x1600000) off S1x3200.size p) (fun _ => rfl)).view.set]{fullShare} fx))) : sProp 𝕄)
      ⊢ inSlotV d L fx a sm n := by
  subst h
  rw [inSlotV_pos d L fx v]
  iintro ⟨%gold, %w, %hw, H⟩
  iexists _
  isplitr
  · ipureintro; exact inRow_fetch d L fx a gold w n hw
  · iexact H

set_option maxHeartbeats 4000000 in
/-- A write-out just issued from a flat staging buffer whose first 3200 elements are the staging row, itself piece
    `n` of the argument row: the piece of the result will hold the row's elements. -/
theorem fl_outV {off : Fin 1 → ℕ} {n : ℕ} (h : off = ![pos L n]) (p : ∀ a, off a + S3200.size a ≤ S1600000.size a) (v : valid L n)
    (ar : Memref sig .scVector .vmem S8x3200 .f32) (a : Memref sig .scVector .vmem S25600 .f32) (sm : DmaSem sig)
    (f0 : Buf (Elt F) ((oW).view.loc (thr d L))) (ga : Buf (Elt F) (ar.view.loc (thr d L))) (gb : Buf (Elt F) (a.view.loc (thr d L)))
    (hl : Lanes d L ar a ga gb 200) (hr : InRow d L fx ar ga n) :
    (iprop(∃ (w : S3200.Idx → Elt F .f32),
        ⌜∀ y, w y = (stg a).view.read (Elt F) gb y⌝
        ∗ Transfers.Flight countersEmb (thr d L) (SemLoc.dma sm) (default : HIx 22) NN
          iprop((((oW).slice (Rect.unit (s := S1600000) off S3200.size p) (fun _ => rfl)).view.loc (thr d L)
                ↦[((oW).slice (Rect.unit (s := S1600000) off S3200.size p) (fun _ => rfl)).view.set]{fullShare}
                  (((oW).slice (Rect.unit (s := S1600000) off S3200.size p) (fun _ => rfl)).view.writes (Elt F) f0 [⟨Rect.whole _, w⟩]))
            ∗ ((stg a).view.loc (thr d L) ↦[(stg a).view.set]{fullShare} gb))
        ∗ (a.view.loc (thr d L) ↦[Finset.univ \ (stg a).view.set]{fullShare} gb)) : sProp 𝕄)
      ⊢ outSlotV d L fx a sm (n + 2) := by
  subst h
  rw [outSlotV_pos d L fx (m := n + 2) ⟨by omega, by simpa using v⟩]
  iintro ⟨%w, %hw, H, R⟩
  have hD : (iprop(((outM L n).view.loc (thr d L) ↦[(outM L n).view.set]{fullShare} ((outM L n).view.writes (Elt F) f0 [⟨Rect.whole _, w⟩]))
          ∗ ((stg a).view.loc (thr d L) ↦[(stg a).view.set]{fullShare} gb)) : sProp 𝕄)
      ⊢ iprop(oqPiece d L fx (n + 2 - 2) ∗ ((stg a).view.loc (thr d L) ↦[(stg a).view.set]{fullShare} gb)) := by
    rw [Nat.add_sub_cancel]
    have e : (((outM L n).view.loc (thr d L) ↦[(outM L n).view.set]{fullShare} ((outM L n).view.writes (Elt F) f0 [⟨Rect.whole _, w⟩])) : sProp 𝕄)
        = oqPiece d L fx n := pointsTo_congr (out_written d L fx ar a n ga gb f0 w hw hl hr v)
    iintro ⟨H1, H2⟩
    isplitl [H1]
    · iapply (Entails.of_eq e); iexact H1
    · iexact H2
  iexists gb
  isplitl [H]
  · iapply (Transfers.Flight_mono countersEmb (thr d L) hD); iexact H
  · iexact R

/-- The result pieces outside the slots before trip `t`: those already written hold the row, the others some contents. -/
def oMix (t n : ℕ) : sProp 𝕄 := if n + 2 < 2 * t then oQ d L fx n else oP (F := F) d L n
theorem oMix_lt {t n : ℕ} (h : n + 2 < 2 * t) : oMix d L fx t n = oQ d L fx n := if_pos h
theorem oMix_ge {t n : ℕ} (h : ¬ n + 2 < 2 * t) : oMix d L fx t n = oP (F := F) d L n := if_neg h
theorem oMix_core (k : ℕ) : bigSep (oCore k) (oMix d L fx k) = bigSep (oCore k) (oMix d L fx (k + 1)) :=
  bigSep_congr fun n hn => by
    have hn' : n + 2 ≠ 2 * k ∧ n + 2 ≠ 2 * k + 1 ∧ n ≠ 2 * k ∧ n ≠ 2 * k + 1 := by
      simp only [oCore, Finset.mem_filter, Finset.mem_range] at hn; exact hn.2
    by_cases h : n + 2 < 2 * k
    · rw [oMix_lt d L fx h, oMix_lt d L fx (by omega)]
    · rw [oMix_ge d L fx h, oMix_ge d L fx (by omega)]
theorem oMix_zero : bigSep (oSet 0) (oMix d L fx 0) = bigSep (Finset.range 18) (oP (F := F) d L) := by
  rw [oSet_zero]; exact bigSep_congr fun n _ => oMix_ge d L fx (by omega)
theorem oMix_end : bigSep (oSet 8) (oMix d L fx 8) = bigSep (oSet 8) (oQ d L fx) :=
  bigSep_congr fun n hn => by
    have hn' : n < 18 ∧ n + 2 ≠ 16 ∧ n + 2 ≠ 17 := by simpa only [oSet, Finset.mem_filter, Finset.mem_range] using hn
    by_cases h : n + 2 < 2 * 8
    · exact oMix_lt d L fx h
    · rw [oMix_ge d L fx h, oP_neg (F := F) d L (by unfold valid; omega), oQ_neg d L fx (by unfold valid; omega)]

/-- The lane-copy loops: before trip `j` the first 16·j elements of the flat staging buffer are the staging row's. -/
def laneV0 (g4 : Buf (Elt F) ((a4).view.loc (thr d L))) (j : ℕ) (_ : PUnit) : sProp 𝕄 :=
  iprop(((a4).view.loc (thr d L) ↦{fullShare} g4) ∗ (∃ g, ((a6).view.loc (thr d L) ↦{fullShare} g) ∗ ⌜Lanes d L a4 a6 g4 g j⌝))
def laneV1 (g5 : Buf (Elt F) ((a5).view.loc (thr d L))) (j : ℕ) (_ : PUnit) : sProp 𝕄 :=
  iprop(((a5).view.loc (thr d L) ↦{fullShare} g5) ∗ (∃ g, ((a7).view.loc (thr d L) ↦{fullShare} g) ∗ ⌜Lanes d L a5 a7 g5 g j⌝))

def invV (t : ℕ) (_ : PUnit) : sProp 𝕄 :=
  iprop(Transfers.MayWaits (thr d L) (none : HIx 22) O
    ∗ (∃ W', ⌜∀ p ∈ W', p ∈ W ∨ p.2 = none⌝ ∗ owes (thr d L) O W')
    ∗ bigSep (xSet t) (xP d L fx) ∗ bigSep (oSet t) (oMix d L fx t)
    ∗ inSlotV d L fx a4 cc19_scratch4.sem (2 * t) ∗ outSlotV d L fx a6 cc19_scratch6.sem (2 * t)
    ∗ inSlotV d L fx a5 cc19_scratch5.sem (2 * t + 1) ∗ outSlotV d L fx a7 cc19_scratch7.sem (2 * t + 1))

/-- After the last trip nothing of the argument row is in a slot: the tile holds all its pieces. -/
theorem xRange_end : bigSep (xSet 8) (xP d L fx) ⊢ bigSep (Finset.range 18) (xP d L fx) := by
  rw [two_out (s := Finset.range 18) (a := 16) (b := 17) (by decide) (by decide) (by decide),
    show ((Finset.range 18).erase 16).erase 17 = xSet 8 by decide]
  iintro H
  isplitr; · iapply (Entails.of_eq (xP_neg d L fx (n := 16) (by unfold valid; omega)).symm); iempintro
  isplitr; · iapply (Entails.of_eq (xP_neg d L fx (n := 17) (by unfold valid; omega)).symm); iempintro
  iexact H
omit [FloatOps F] in
theorem oRange_end (Φ : ℕ → sProp 𝕄) : bigSep (Finset.range 18) Φ = iprop(Φ 14 ∗ Φ 15 ∗ bigSep (oSet 8) Φ) := by
  rw [two_out (s := Finset.range 18) (a := 14) (b := 15) (by decide) (by decide) (by decide),
    show ((Finset.range 18).erase 14).erase 15 = oSet 8 by decide]

/-- What the run starts from and ends with, beside an untouched rest `R`. -/
def runPre (R : sProp 𝕄) : sProp 𝕄 :=
    iprop(Transfers.MayWaits (thr d L) (none : HIx 22) O ∗ owes (thr d L) O W
        ∗ bigSep (Finset.range 18) (xP d L fx) ∗ bigSep (Finset.range 18) (oP (F := F) d L)
        ∗ (∃ g, (a4).view.loc (thr d L) ↦{fullShare} g) ∗ (∃ g, (a5).view.loc (thr d L) ↦{fullShare} g)
        ∗ (∃ g, (a6).view.loc (thr d L) ↦{fullShare} g) ∗ (∃ g, (a7).view.loc (thr d L) ↦{fullShare} g)
        ∗ semVal (thr d L, SemLoc.dma cc19_scratch4.sem) 0 ∗ semVal (thr d L, SemLoc.dma cc19_scratch5.sem) 0
        ∗ semVal (thr d L, SemLoc.dma cc19_scratch6.sem) 0 ∗ semVal (thr d L, SemLoc.dma cc19_scratch7.sem) 0 ∗ R)
def runPost (R : sProp 𝕄) : sProp 𝕄 :=
    iprop(bigSep (Finset.range 18) (xP d L fx) ∗ bigSep (Finset.range 18) (oQ d L fx)
            ∗ (∃ g, (a4).view.loc (thr d L) ↦{fullShare} g) ∗ (∃ g, (a5).view.loc (thr d L) ↦{fullShare} g)
            ∗ (∃ g, (a6).view.loc (thr d L) ↦{fullShare} g) ∗ (∃ g, (a7).view.loc (thr d L) ↦{fullShare} g)
            ∗ semVal (thr d L, SemLoc.dma cc19_scratch4.sem) 0 ∗ semVal (thr d L, SemLoc.dma cc19_scratch5.sem) 0
            ∗ semVal (thr d L, SemLoc.dma cc19_scratch6.sem) 0 ∗ semVal (thr d L, SemLoc.dma cc19_scratch7.sem) 0
            ∗ (∃ W', ⌜∀ p ∈ W', p ∈ W ∨ p.2 = none⌝ ∗ owes (thr d L) O W') ∗ R)

set_option maxHeartbeats 16000000 in
/-- The task's run: from its pieces of the argument row and of the result, the four staging buffers and the four
    semaphores at zero, to the same with every piece of the result holding the row's elements. -/
theorem tile_run (R : sProp 𝕄) :
    runPre d L O W fx R
      ⊢ wp frame (wpE (defs₀ (F := F)) 𝒱₀ (thr d L) none) Set.univ
          (cc19_sc_group L xtW (Memref.isWhole_whole _) oW (Memref.isWhole_whole _) a4 (Memref.isWhole_whole _) a5 (Memref.isWhole_whole _)
            a6 (Memref.isWhole_whole _) a7 (Memref.isWhole_whole _) cc19_scratch4 cc19_scratch5 cc19_scratch6 cc19_scratch7)
          fun _ => runPost d L O W fx R := by
  unfold runPre runPost
  have v0 : valid L 0 := Or.inl (by omega)
  have v1 : valid L 1 := Or.inl (by omega)
  have k19_h7 : k19_cond7 L = 1#1 := cond7_iff L
  iintro ⟨#Hmw, HO, HX, HOut, ⟨%g4, H4⟩, ⟨%g5, H5⟩, ⟨%g6, H6⟩, ⟨%g7, H7⟩, Hs8, Hs9, Hs10, Hs11, HR⟩
  ihave HX := (Entails.of_eq (xRange_split d L fx v0 v1)) $$ HX
  icases HX with ⟨X0, X1, HX⟩
  ihave X0 := (Entails.of_eq (in_congr d L (off_in0 L v0).symm (in_inb L _) (k19_off1_inb L 0) fx)) $$ X0
  ihave X1 := (Entails.of_eq (in_congr d L (off_in1 L v1).symm (in_inb L _) (k19_off1_inb L 1) fx)) $$ X1
  sl_unfold [cc19_sc_group]
  sl_exec
  ihave S8 := (fl_inV d L fx (off_in0 L v0) (k19_off1_inb L 0) v0 a4 cc19_scratch4.sem) $$ [Hs8]
  · iexists _, _
    isplitr
    rotate_left
    · iexact Hs8
    ipureintro; intro y; rfl
  ihave S9 := (fl_inV d L fx (off_in1 L v1) (k19_off1_inb L 1) v1 a5 cc19_scratch5.sem) $$ [Hs9]
  · iexists _, _
    isplitr
    rotate_left
    · iexact Hs9
    ipureintro; intro y; rfl
  sl_for (invV d L O W fx) $$ [HO HX HOut S8 S9 H6 H7 Hs10 Hs11]
  case region =>
    intro (k : Fin k19_t1_loop.trips) acc
    have hk : k.val < 8 := Nat.lt_of_lt_of_eq k.isLt trips1
    unfold invV
    iintro ⟨#Hmw, ⟨%W', %hW', HO⟩, HX, HOut, S8, S10, S9, S11⟩
    by_cases hk1 : 1 ≤ k.val
    · by_cases v3 : valid L (2 * k.val + 3)
      · -- the generic trip: both drains, both pieces worked, both next fetches issued
        have hk6 : k.val ≤ 6 := by unfold valid at v3; omega
        have k19_h1 : k19_cond1 k = 1#1 := (cond1_iff k).mpr (by omega)
        have k19_h2 : k19_cond2 L k = 1#1 := cond2_iff L k
        have k19_h3 : k19_cond3 L k = 1#1 := (cond3_iff L k).mpr (by omega)
        have k19_h4 : k19_cond4 k = 1#1 := (cond4_iff k).mpr (by omega)
        have k19_h5 : k19_cond5 L k = 1#1 := (cond5_iff L k).mpr (by first | (unfold valid big at *; omega) | (unfold big at *; omega) | omega)
        have k19_h6 : k19_cond6 L k = 1#1 := (cond6_iff L k).mpr (by first | (unfold valid big at *; omega) | (unfold big at *; omega) | omega)
        have v0 : valid L (2 * k.val) := by unfold valid big at *; omega
        have v1 : valid L (2 * k.val + 1) := by unfold valid big at *; omega
        have v2 : valid L (2 * k.val + 2) := by unfold valid big at *; omega
        have v3' : valid L (2 * k.val + 3) := by unfold valid big at *; omega
        have hm0 : 2 ≤ 2 * k.val ∧ valid L (2 * k.val - 2) := ⟨by omega, by unfold valid big at *; omega⟩
        have hm1 : 2 ≤ 2 * k.val + 1 ∧ valid L (2 * k.val + 1 - 2) := ⟨by omega, by unfold valid big at *; omega⟩
        ihave S8 := (Entails.of_eq (inSlotV_pos d L fx v0)) $$ S8
        icases S8 with ⟨%g4, %hin4, F8⟩
        ihave S9 := (Entails.of_eq (inSlotV_pos d L fx v1)) $$ S9
        icases S9 with ⟨%g5, %hin5, F9⟩
        ihave S10 := (Entails.of_eq (outSlotV_pos d L fx hm0)) $$ S10
        icases S10 with ⟨%g6, F10, R6⟩
        ihave S11 := (Entails.of_eq (outSlotV_pos d L fx hm1)) $$ S11
        icases S11 with ⟨%g7, F11, R7⟩
        ihave HX := (Entails.of_eq (xSet_out (xP d L fx) k.val hk)) $$ HX
        icases HX with ⟨X2, X3, HX⟩
        ihave X2 := (Entails.of_eq (xP_pos d L fx v2)) $$ X2
        ihave X2 := (Entails.of_eq (in_congr d L (off_6 L k v2).symm (in_inb L _) (k19_off6_inb L k k19_h3) fx)) $$ X2
        ihave X3 := (Entails.of_eq (xP_pos d L fx v3')) $$ X3
        ihave X3 := (Entails.of_eq (in_congr d L (off_11 L k v3').symm (in_inb L _) (k19_off11_inb L k k19_h6) fx)) $$ X3
        ihave HOut := (Entails.of_eq (oSet_out (oMix d L fx k.val) k.val hk)) $$ HOut
        icases HOut with ⟨Y0, Y1, HOut⟩
        ihave Y0 := (Entails.of_eq ((oMix_ge d L fx (t := k.val) (n := 2 * k.val) (by omega)).trans (oP_pos (F := F) d L v0))) $$ Y0
        icases Y0 with ⟨%f0, Y0⟩
        ihave Y0 := (Entails.of_eq (out_congr d L (off_5 L k v0).symm (out_inb L _) (k19_off5_inb L k k19_h2) f0)) $$ Y0
        ihave Y1 := (Entails.of_eq ((oMix_ge d L fx (t := k.val) (n := 2 * k.val + 1) (by omega)).trans (oP_pos (F := F) d L v1))) $$ Y1
        icases Y1 with ⟨%f1, Y1⟩
        ihave Y1 := (Entails.of_eq (out_congr d L (off_10 L k v1).symm (out_inb L _) (k19_off10_inb L k k19_h5) f1)) $$ Y1
        sl_exec
        sl_for (laneV0 d L g4) $$ [F8_dst R6]
        case region =>
          intro (j : Fin k19_t2_loop.trips) _
          unfold laneV0
          iintro ⟨HA, %g, HB, %hl⟩
          sl_exec
          sl_step
          isplitl [HA]; · iexact HA
          iexists _; isplitl [HB]; · iexact HB
          ipureintro; exact lanes_step d L a4 a6 g4 g j _ _ hl
        · unfold laneV0
          isplitl [F8_dst]; · iexact F8_dst
          iexists _; isplitl [R6]; · iexact R6
          ipureintro; exact lanes_zero d L a4 a6 g4 _
        iintro %_ HI
        unfold laneV0
        icases HI with ⟨H4, %g6', H6, %hl6⟩
        have hl6 : Lanes d L a4 a6 g4 g6' 200 := Eq.mp (congrArg (Lanes d L a4 a6 g4 g6') trips2) hl6
        sl_exec
        sl_for (laneV1 d L g5) $$ [F9_dst R7]
        case region =>
          intro (j : Fin k19_t3_loop.trips) _
          unfold laneV1
          iintro ⟨HA, %g, HB, %hl⟩
          sl_exec
          sl_step
          isplitl [HA]; · iexact HA
          iexists _; isplitl [HB]; · iexact HB
          ipureintro; exact lanes_step' d L a5 a7 g5 g j _ _ hl
        · unfold laneV1
          isplitl [F9_dst]; · iexact F9_dst
          iexists _; isplitl [R7]; · iexact R7
          ipureintro; exact lanes_zero d L a5 a7 g5 _
        iintro %_ HI
        unfold laneV1
        icases HI with ⟨H5, %g7', H7, %hl7⟩
        have hl7 : Lanes d L a5 a7 g5 g7' 200 := Eq.mp (congrArg (Lanes d L a5 a7 g5 g7') trips3) hl7
        sl_exec
        sl_step
        isplitr; · iexact Hmw
        isplitl [HO]
        · iexists _; isplitr
          rotate_left
          · iexact HO
          ipureintro; intro p hp
          rcases Finset.mem_insert.mp hp with rfl | hp
          · exact .inr rfl
          rcases Finset.mem_insert.mp hp with rfl | hp
          · exact .inr rfl
          rcases Finset.mem_insert.mp hp with rfl | hp
          · exact .inr rfl
          rcases Finset.mem_insert.mp hp with rfl | hp
          · exact .inr rfl
          exact hW' p hp
        isplitl [HX F8_src F9_src]
        · iapply (Entails.of_eq (xSet_in (xP d L fx) k.val hk).symm)
          isplitl [F8_src]; · iapply (Entails.of_eq (xP_pos d L fx v0).symm); iexact F8_src
          isplitl [F9_src]; · iapply (Entails.of_eq (xP_pos d L fx v1).symm); iexact F9_src
          iexact HX
        isplitl [HOut F10_dst F11_dst]
        · iapply (Entails.of_eq (oSet_in (oMix d L fx (k.val + 1)) k.val hk (by omega)).symm)
          isplitl [F10_dst]; · iapply (Entails.of_eq ((oMix_lt d L fx (t := k.val + 1) (n := 2 * k.val - 2) (by omega)).trans (oQ_pos d L fx hm0.2)).symm); iexact F10_dst
          isplitl [F11_dst]
          · iapply (Entails.of_eq ((oMix_lt d L fx (t := k.val + 1) (n := 2 * k.val - 1) (by omega)).trans (oQ_pos d L fx (n := 2 * k.val - 1) (by have := hm1.2; rwa [show 2 * k.val + 1 - 2 = 2 * k.val - 1 by omega] at this))).symm)
            iapply (Entails.of_eq (congrArg (oqPiece d L fx) (show 2 * k.val + 1 - 2 = 2 * k.val - 1 by omega))); iexact F11_dst
          iapply (Entails.of_eq (oMix_core d L fx k.val)); iexact HOut
        isplitl [F8]
        · iapply (Entails.of_eq (congrArg (inSlotV d L fx a4 cc19_scratch4.sem) (show 2 * k.val + 2 = 2 * (k.val + 1) by ring)))
          iapply (fl_inV d L fx (off_6 L k v2) (k19_off6_inb L k k19_h3) v2 a4 cc19_scratch4.sem); iexists _, _
          isplitr
          rotate_left
          · iexact F8
          ipureintro; intro y; rfl
        isplitl [F10 H6]
        · iapply (Entails.of_eq (congrArg (outSlotV d L fx a6 cc19_scratch6.sem) (show 2 * k.val + 2 = 2 * (k.val + 1) by ring)))
          iapply (fl_outV d L fx (off_5 L k v0) (k19_off5_inb L k k19_h2) v0 a4 a6 cc19_scratch6.sem f0 g4 g6' hl6 hin4); iexists _
          isplitr
          rotate_left
          · isplitl [F10]; · iexact F10
            iexact H6
          ipureintro; intro y; rfl
        isplitl [F9]
        · iapply (Entails.of_eq (congrArg (inSlotV d L fx a5 cc19_scratch5.sem) (show 2 * k.val + 3 = 2 * (k.val + 1) + 1 by ring)))
          iapply (fl_inV d L fx (off_11 L k v3') (k19_off11_inb L k k19_h6) v3' a5 cc19_scratch5.sem); iexists _, _
          isplitr
          rotate_left
          · iexact F9
          ipureintro; intro y; rfl
        · iapply (Entails.of_eq (congrArg (outSlotV d L fx a7 cc19_scratch7.sem) (show 2 * k.val + 1 + 2 = 2 * (k.val + 1) + 1 by ring)))
          iapply (fl_outV d L fx (off_10 L k v1) (k19_off10_inb L k k19_h5) v1 a5 a7 cc19_scratch7.sem f1 g5 g7' hl7 hin5); iexists _
          isplitr
          rotate_left
          · isplitl [F11]; · iexact F11
            iexact H7
          ipureintro; intro y; rfl
      · by_cases h6 : k.val = 6
        · have hb : ¬ big L := fun hb => v3 (Or.inr ⟨by omega, hb⟩)
          -- trip 6 of a tile with fifteen pieces: no sixteenth piece to fetch
          have k19_h1 : k19_cond1 k = 1#1 := (cond1_iff k).mpr (by omega)
          have k19_h2 : k19_cond2 L k = 1#1 := cond2_iff L k
          have k19_h3 : k19_cond3 L k = 1#1 := (cond3_iff L k).mpr (by omega)
          have k19_h4 : k19_cond4 k = 1#1 := (cond4_iff k).mpr (by omega)
          have k19_h5 : k19_cond5 L k = 1#1 := (cond5_iff L k).mpr (by first | (unfold valid big at *; omega) | (unfold big at *; omega) | omega)
          have k19_h6 : ¬ k19_cond6 L k = 1#1 := fun h => absurd ((cond6_iff L k).mp h) (by first | (unfold valid big at *; omega) | (unfold big at *; omega) | omega)
          have v0 : valid L (2 * k.val) := by unfold valid big at *; omega
          have v1 : valid L (2 * k.val + 1) := by unfold valid big at *; omega
          have v2 : valid L (2 * k.val + 2) := by unfold valid big at *; omega
          have v3' : ¬ valid L (2 * k.val + 3) := by unfold valid big at *; omega
          have hm0 : 2 ≤ 2 * k.val ∧ valid L (2 * k.val - 2) := ⟨by omega, by unfold valid big at *; omega⟩
          have hm1 : 2 ≤ 2 * k.val + 1 ∧ valid L (2 * k.val + 1 - 2) := ⟨by omega, by unfold valid big at *; omega⟩
          ihave S8 := (Entails.of_eq (inSlotV_pos d L fx v0)) $$ S8
          icases S8 with ⟨%g4, %hin4, F8⟩
          ihave S9 := (Entails.of_eq (inSlotV_pos d L fx v1)) $$ S9
          icases S9 with ⟨%g5, %hin5, F9⟩
          ihave S10 := (Entails.of_eq (outSlotV_pos d L fx hm0)) $$ S10
          icases S10 with ⟨%g6, F10, R6⟩
          ihave S11 := (Entails.of_eq (outSlotV_pos d L fx hm1)) $$ S11
          icases S11 with ⟨%g7, F11, R7⟩
          ihave HX := (Entails.of_eq (xSet_out (xP d L fx) k.val hk)) $$ HX
          icases HX with ⟨X2, -, HX⟩
          ihave X2 := (Entails.of_eq (xP_pos d L fx v2)) $$ X2
          ihave X2 := (Entails.of_eq (in_congr d L (off_6 L k v2).symm (in_inb L _) (k19_off6_inb L k k19_h3) fx)) $$ X2
          ihave HOut := (Entails.of_eq (oSet_out (oMix d L fx k.val) k.val hk)) $$ HOut
          icases HOut with ⟨Y0, Y1, HOut⟩
          ihave Y0 := (Entails.of_eq ((oMix_ge d L fx (t := k.val) (n := 2 * k.val) (by omega)).trans (oP_pos (F := F) d L v0))) $$ Y0
          icases Y0 with ⟨%f0, Y0⟩
          ihave Y0 := (Entails.of_eq (out_congr d L (off_5 L k v0).symm (out_inb L _) (k19_off5_inb L k k19_h2) f0)) $$ Y0
          ihave Y1 := (Entails.of_eq ((oMix_ge d L fx (t := k.val) (n := 2 * k.val + 1) (by omega)).trans (oP_pos (F := F) d L v1))) $$ Y1
          icases Y1 with ⟨%f1, Y1⟩
          ihave Y1 := (Entails.of_eq (out_congr d L (off_10 L k v1).symm (out_inb L _) (k19_off10_inb L k k19_h5) f1)) $$ Y1
          sl_exec
          sl_for (laneV0 d L g4) $$ [F8_dst R6]
          case region =>
            intro (j : Fin k19_t2_loop.trips) _
            unfold laneV0
            iintro ⟨HA, %g, HB, %hl⟩
            sl_exec
            sl_step
            isplitl [HA]; · iexact HA
            iexists _; isplitl [HB]; · iexact HB
            ipureintro; exact lanes_step d L a4 a6 g4 g j _ _ hl
          · unfold laneV0
            isplitl [F8_dst]; · iexact F8_dst
            iexists _; isplitl [R6]; · iexact R6
            ipureintro; exact lanes_zero d L a4 a6 g4 _
          iintro %_ HI
          unfold laneV0
          icases HI with ⟨H4, %g6', H6, %hl6⟩
          have hl6 : Lanes d L a4 a6 g4 g6' 200 := Eq.mp (congrArg (Lanes d L a4 a6 g4 g6') trips2) hl6
          sl_exec
          sl_for (laneV1 d L g5) $$ [F9_dst R7]
          case region =>
            intro (j : Fin k19_t3_loop.trips) _
            unfold laneV1
            iintro ⟨HA, %g, HB, %hl⟩
            sl_exec
            sl_step
            isplitl [HA]; · iexact HA
            iexists _; isplitl [HB]; · iexact HB
            ipureintro; exact lanes_step' d L a5 a7 g5 g j _ _ hl
          · unfold laneV1
            isplitl [F9_dst]; · iexact F9_dst
            iexists _; isplitl [R7]; · iexact R7
            ipureintro; exact lanes_zero d L a5 a7 g5 _
          iintro %_ HI
          unfold laneV1
          icases HI with ⟨H5, %g7', H7, %hl7⟩
          have hl7 : Lanes d L a5 a7 g5 g7' 200 := Eq.mp (congrArg (Lanes d L a5 a7 g5 g7') trips3) hl7
          sl_exec
          sl_step
          isplitr; · iexact Hmw
          isplitl [HO]
          · iexists _; isplitr
            rotate_left
            · iexact HO
            ipureintro; intro p hp
            rcases Finset.mem_insert.mp hp with rfl | hp
            · exact .inr rfl
            rcases Finset.mem_insert.mp hp with rfl | hp
            · exact .inr rfl
            rcases Finset.mem_insert.mp hp with rfl | hp
            · exact .inr rfl
            rcases Finset.mem_insert.mp hp with rfl | hp
            · exact .inr rfl
            exact hW' p hp
          isplitl [HX F8_src F9_src]
          · iapply (Entails.of_eq (xSet_in (xP d L fx) k.val hk).symm)
            isplitl [F8_src]; · iapply (Entails.of_eq (xP_pos d L fx v0).symm); iexact F8_src
            isplitl [F9_src]; · iapply (Entails.of_eq (xP_pos d L fx v1).symm); iexact F9_src
            iexact HX
          isplitl [HOut F10_dst F11_dst]
          · iapply (Entails.of_eq (oSet_in (oMix d L fx (k.val + 1)) k.val hk (by omega)).symm)
            isplitl [F10_dst]; · iapply (Entails.of_eq ((oMix_lt d L fx (t := k.val + 1) (n := 2 * k.val - 2) (by omega)).trans (oQ_pos d L fx hm0.2)).symm); iexact F10_dst
            isplitl [F11_dst]
            · iapply (Entails.of_eq ((oMix_lt d L fx (t := k.val + 1) (n := 2 * k.val - 1) (by omega)).trans (oQ_pos d L fx (n := 2 * k.val - 1) (by have := hm1.2; rwa [show 2 * k.val + 1 - 2 = 2 * k.val - 1 by omega] at this))).symm)
              iapply (Entails.of_eq (congrArg (oqPiece d L fx) (show 2 * k.val + 1 - 2 = 2 * k.val - 1 by omega))); iexact F11_dst
            iapply (Entails.of_eq (oMix_core d L fx k.val)); iexact HOut
          isplitl [F8]
          · iapply (Entails.of_eq (congrArg (inSlotV d L fx a4 cc19_scratch4.sem) (show 2 * k.val + 2 = 2 * (k.val + 1) by ring)))
            iapply (fl_inV d L fx (off_6 L k v2) (k19_off6_inb L k k19_h3) v2 a4 cc19_scratch4.sem); iexists _, _
            isplitr
            rotate_left
            · iexact F8
            ipureintro; intro y; rfl
          isplitl [F10 H6]
          · iapply (Entails.of_eq (congrArg (outSlotV d L fx a6 cc19_scratch6.sem) (show 2 * k.val + 2 = 2 * (k.val + 1) by ring)))
            iapply (fl_outV d L fx (off_5 L k v0) (k19_off5_inb L k k19_h2) v0 a4 a6 cc19_scratch6.sem f0 g4 g6' hl6 hin4); iexists _
            isplitr
            rotate_left
            · isplitl [F10]; · iexact F10
              iexact H6
            ipureintro; intro y; rfl
          isplitl [H5 F9]
          · iapply (Entails.of_eq (congrArg (inSlotV d L fx a5 cc19_scratch5.sem) (show 2 * k.val + 3 = 2 * (k.val + 1) + 1 by ring)))
            iapply (Entails.of_eq (inSlotV_neg d L fx v3').symm)
            isplitl [H5]; · iexists _; iexact H5
            iexact F9
          · iapply (Entails.of_eq (congrArg (outSlotV d L fx a7 cc19_scratch7.sem) (show 2 * k.val + 1 + 2 = 2 * (k.val + 1) + 1 by ring)))
            iapply (fl_outV d L fx (off_10 L k v1) (k19_off10_inb L k k19_h5) v1 a5 a7 cc19_scratch7.sem f1 g5 g7' hl7 hin5); iexists _
            isplitr
            rotate_left
            · isplitl [F11]; · iexact F11
              iexact H7
            ipureintro; intro y; rfl
        · have h7 : k.val = 7 := by unfold valid at v3; omega
          by_cases hb : big L
          · -- the last trip of a tile with sixteen pieces: nothing more to fetch
            have k19_h1 : k19_cond1 k = 1#1 := (cond1_iff k).mpr (by omega)
            have k19_h2 : k19_cond2 L k = 1#1 := cond2_iff L k
            have k19_h3 : ¬ k19_cond3 L k = 1#1 := fun h => absurd ((cond3_iff L k).mp h) (by omega)
            have k19_h4 : k19_cond4 k = 1#1 := (cond4_iff k).mpr (by omega)
            have k19_h5 : k19_cond5 L k = 1#1 := (cond5_iff L k).mpr (by first | (unfold valid big at *; omega) | (unfold big at *; omega) | omega)
            have k19_h6 : ¬ k19_cond6 L k = 1#1 := fun h => absurd ((cond6_iff L k).mp h) (by first | (unfold valid big at *; omega) | (unfold big at *; omega) | omega)
            have v0 : valid L (2 * k.val) := by unfold valid big at *; omega
            have v1 : valid L (2 * k.val + 1) := by unfold valid big at *; omega
            have v2 : ¬ valid L (2 * k.val + 2) := by unfold valid big at *; omega
            have v3' : ¬ valid L (2 * k.val + 3) := by unfold valid big at *; omega
            have hm0 : 2 ≤ 2 * k.val ∧ valid L (2 * k.val - 2) := ⟨by omega, by unfold valid big at *; omega⟩
            have hm1 : 2 ≤ 2 * k.val + 1 ∧ valid L (2 * k.val + 1 - 2) := ⟨by omega, by unfold valid big at *; omega⟩
            ihave S8 := (Entails.of_eq (inSlotV_pos d L fx v0)) $$ S8
            icases S8 with ⟨%g4, %hin4, F8⟩
            ihave S9 := (Entails.of_eq (inSlotV_pos d L fx v1)) $$ S9
            icases S9 with ⟨%g5, %hin5, F9⟩
            ihave S10 := (Entails.of_eq (outSlotV_pos d L fx hm0)) $$ S10
            icases S10 with ⟨%g6, F10, R6⟩
            ihave S11 := (Entails.of_eq (outSlotV_pos d L fx hm1)) $$ S11
            icases S11 with ⟨%g7, F11, R7⟩
            ihave HX := (Entails.of_eq (xSet_out (xP d L fx) k.val hk)) $$ HX
            icases HX with ⟨-, -, HX⟩
            ihave HOut := (Entails.of_eq (oSet_out (oMix d L fx k.val) k.val hk)) $$ HOut
            icases HOut with ⟨Y0, Y1, HOut⟩
            ihave Y0 := (Entails.of_eq ((oMix_ge d L fx (t := k.val) (n := 2 * k.val) (by omega)).trans (oP_pos (F := F) d L v0))) $$ Y0
            icases Y0 with ⟨%f0, Y0⟩
            ihave Y0 := (Entails.of_eq (out_congr d L (off_5 L k v0).symm (out_inb L _) (k19_off5_inb L k k19_h2) f0)) $$ Y0
            ihave Y1 := (Entails.of_eq ((oMix_ge d L fx (t := k.val) (n := 2 * k.val + 1) (by omega)).trans (oP_pos (F := F) d L v1))) $$ Y1
            icases Y1 with ⟨%f1, Y1⟩
            ihave Y1 := (Entails.of_eq (out_congr d L (off_10 L k v1).symm (out_inb L _) (k19_off10_inb L k k19_h5) f1)) $$ Y1
            sl_exec
            sl_for (laneV0 d L g4) $$ [F8_dst R6]
            case region =>
              intro (j : Fin k19_t2_loop.trips) _
              unfold laneV0
              iintro ⟨HA, %g, HB, %hl⟩
              sl_exec
              sl_step
              isplitl [HA]; · iexact HA
              iexists _; isplitl [HB]; · iexact HB
              ipureintro; exact lanes_step d L a4 a6 g4 g j _ _ hl
            · unfold laneV0
              isplitl [F8_dst]; · iexact F8_dst
              iexists _; isplitl [R6]; · iexact R6
              ipureintro; exact lanes_zero d L a4 a6 g4 _
            iintro %_ HI
            unfold laneV0
            icases HI with ⟨H4, %g6', H6, %hl6⟩
            have hl6 : Lanes d L a4 a6 g4 g6' 200 := Eq.mp (congrArg (Lanes d L a4 a6 g4 g6') trips2) hl6
            sl_exec
            sl_for (laneV1 d L g5) $$ [F9_dst R7]
            case region =>
              intro (j : Fin k19_t3_loop.trips) _
              unfold laneV1
              iintro ⟨HA, %g, HB, %hl⟩
              sl_exec
              sl_step
              isplitl [HA]; · iexact HA
              iexists _; isplitl [HB]; · iexact HB
              ipureintro; exact lanes_step' d L a5 a7 g5 g j _ _ hl
            · unfold laneV1
              isplitl [F9_dst]; · iexact F9_dst
              iexists _; isplitl [R7]; · iexact R7
              ipureintro; exact lanes_zero d L a5 a7 g5 _
            iintro %_ HI
            unfold laneV1
            icases HI with ⟨H5, %g7', H7, %hl7⟩
            have hl7 : Lanes d L a5 a7 g5 g7' 200 := Eq.mp (congrArg (Lanes d L a5 a7 g5 g7') trips3) hl7
            sl_exec
            sl_step
            isplitr; · iexact Hmw
            isplitl [HO]
            · iexists _; isplitr
              rotate_left
              · iexact HO
              ipureintro; intro p hp
              rcases Finset.mem_insert.mp hp with rfl | hp
              · exact .inr rfl
              rcases Finset.mem_insert.mp hp with rfl | hp
              · exact .inr rfl
              rcases Finset.mem_insert.mp hp with rfl | hp
              · exact .inr rfl
              rcases Finset.mem_insert.mp hp with rfl | hp
              · exact .inr rfl
              exact hW' p hp
            isplitl [HX F8_src F9_src]
            · iapply (Entails.of_eq (xSet_in (xP d L fx) k.val hk).symm)
              isplitl [F8_src]; · iapply (Entails.of_eq (xP_pos d L fx v0).symm); iexact F8_src
              isplitl [F9_src]; · iapply (Entails.of_eq (xP_pos d L fx v1).symm); iexact F9_src
              iexact HX
            isplitl [HOut F10_dst F11_dst]
            · iapply (Entails.of_eq (oSet_in (oMix d L fx (k.val + 1)) k.val hk (by omega)).symm)
              isplitl [F10_dst]; · iapply (Entails.of_eq ((oMix_lt d L fx (t := k.val + 1) (n := 2 * k.val - 2) (by omega)).trans (oQ_pos d L fx hm0.2)).symm); iexact F10_dst
              isplitl [F11_dst]
              · iapply (Entails.of_eq ((oMix_lt d L fx (t := k.val + 1) (n := 2 * k.val - 1) (by omega)).trans (oQ_pos d L fx (n := 2 * k.val - 1) (by have := hm1.2; rwa [show 2 * k.val + 1 - 2 = 2 * k.val - 1 by omega] at this))).symm)
                iapply (Entails.of_eq (congrArg (oqPiece d L fx) (show 2 * k.val + 1 - 2 = 2 * k.val - 1 by omega))); iexact F11_dst
              iapply (Entails.of_eq (oMix_core d L fx k.val)); iexact HOut
            isplitl [H4 F8]
            · iapply (Entails.of_eq (congrArg (inSlotV d L fx a4 cc19_scratch4.sem) (show 2 * k.val + 2 = 2 * (k.val + 1) by ring)))
              iapply (Entails.of_eq (inSlotV_neg d L fx v2).symm)
              isplitl [H4]; · iexists _; iexact H4
              iexact F8
            isplitl [F10 H6]
            · iapply (Entails.of_eq (congrArg (outSlotV d L fx a6 cc19_scratch6.sem) (show 2 * k.val + 2 = 2 * (k.val + 1) by ring)))
              iapply (fl_outV d L fx (off_5 L k v0) (k19_off5_inb L k k19_h2) v0 a4 a6 cc19_scratch6.sem f0 g4 g6' hl6 hin4); iexists _
              isplitr
              rotate_left
              · isplitl [F10]; · iexact F10
                iexact H6
              ipureintro; intro y; rfl
            isplitl [H5 F9]
            · iapply (Entails.of_eq (congrArg (inSlotV d L fx a5 cc19_scratch5.sem) (show 2 * k.val + 3 = 2 * (k.val + 1) + 1 by ring)))
              iapply (Entails.of_eq (inSlotV_neg d L fx v3').symm)
              isplitl [H5]; · iexists _; iexact H5
              iexact F9
            · iapply (Entails.of_eq (congrArg (outSlotV d L fx a7 cc19_scratch7.sem) (show 2 * k.val + 1 + 2 = 2 * (k.val + 1) + 1 by ring)))
              iapply (fl_outV d L fx (off_10 L k v1) (k19_off10_inb L k k19_h5) v1 a5 a7 cc19_scratch7.sem f1 g5 g7' hl7 hin5); iexists _
              isplitr
              rotate_left
              · isplitl [F11]; · iexact F11
                iexact H7
              ipureintro; intro y; rfl
          · -- the last trip of a tile with fifteen pieces: the second slot only drains
            have k19_h1 : k19_cond1 k = 1#1 := (cond1_iff k).mpr (by omega)
            have k19_h2 : k19_cond2 L k = 1#1 := cond2_iff L k
            have k19_h3 : ¬ k19_cond3 L k = 1#1 := fun h => absurd ((cond3_iff L k).mp h) (by omega)
            have k19_h4 : k19_cond4 k = 1#1 := (cond4_iff k).mpr (by omega)
            have k19_h5 : ¬ k19_cond5 L k = 1#1 := fun h => absurd ((cond5_iff L k).mp h) (by first | (unfold valid big at *; omega) | (unfold big at *; omega) | omega)
            have k19_h6 : ¬ k19_cond6 L k = 1#1 := fun h => absurd ((cond6_iff L k).mp h) (by first | (unfold valid big at *; omega) | (unfold big at *; omega) | omega)
            have v0 : valid L (2 * k.val) := by unfold valid big at *; omega
            have v1 : ¬ valid L (2 * k.val + 1) := by unfold valid big at *; omega
            have v2 : ¬ valid L (2 * k.val + 2) := by unfold valid big at *; omega
            have v3' : ¬ valid L (2 * k.val + 3) := by unfold valid big at *; omega
            have hm0 : 2 ≤ 2 * k.val ∧ valid L (2 * k.val - 2) := ⟨by omega, by unfold valid big at *; omega⟩
            have hm1 : 2 ≤ 2 * k.val + 1 ∧ valid L (2 * k.val + 1 - 2) := ⟨by omega, by unfold valid big at *; omega⟩
            ihave S8 := (Entails.of_eq (inSlotV_pos d L fx v0)) $$ S8
            icases S8 with ⟨%g4, %hin4, F8⟩
            ihave S9 := (Entails.of_eq (inSlotV_neg d L fx v1)) $$ S9
            icases S9 with ⟨⟨%g5, H5⟩, F9⟩
            ihave S10 := (Entails.of_eq (outSlotV_pos d L fx hm0)) $$ S10
            icases S10 with ⟨%g6, F10, R6⟩
            ihave S11 := (Entails.of_eq (outSlotV_pos d L fx hm1)) $$ S11
            icases S11 with ⟨%g7, F11, R7⟩
            ihave HX := (Entails.of_eq (xSet_out (xP d L fx) k.val hk)) $$ HX
            icases HX with ⟨-, -, HX⟩
            ihave HOut := (Entails.of_eq (oSet_out (oMix d L fx k.val) k.val hk)) $$ HOut
            icases HOut with ⟨Y0, -, HOut⟩
            ihave Y0 := (Entails.of_eq ((oMix_ge d L fx (t := k.val) (n := 2 * k.val) (by omega)).trans (oP_pos (F := F) d L v0))) $$ Y0
            icases Y0 with ⟨%f0, Y0⟩
            ihave Y0 := (Entails.of_eq (out_congr d L (off_5 L k v0).symm (out_inb L _) (k19_off5_inb L k k19_h2) f0)) $$ Y0
            sl_exec
            sl_for (laneV0 d L g4) $$ [F8_dst R6]
            case region =>
              intro (j : Fin k19_t2_loop.trips) _
              unfold laneV0
              iintro ⟨HA, %g, HB, %hl⟩
              sl_exec
              sl_step
              isplitl [HA]; · iexact HA
              iexists _; isplitl [HB]; · iexact HB
              ipureintro; exact lanes_step d L a4 a6 g4 g j _ _ hl
            · unfold laneV0
              isplitl [F8_dst]; · iexact F8_dst
              iexists _; isplitl [R6]; · iexact R6
              ipureintro; exact lanes_zero d L a4 a6 g4 _
            iintro %_ HI
            unfold laneV0
            icases HI with ⟨H4, %g6', H6, %hl6⟩
            have hl6 : Lanes d L a4 a6 g4 g6' 200 := Eq.mp (congrArg (Lanes d L a4 a6 g4 g6') trips2) hl6
            sl_exec
            sl_step
            isplitr; · iexact Hmw
            isplitl [HO]
            · iexists _; isplitr
              rotate_left
              · iexact HO
              ipureintro; intro p hp
              rcases Finset.mem_insert.mp hp with rfl | hp
              · exact .inr rfl
              rcases Finset.mem_insert.mp hp with rfl | hp
              · exact .inr rfl
              rcases Finset.mem_insert.mp hp with rfl | hp
              · exact .inr rfl
              exact hW' p hp
            isplitl [HX F8_src]
            · iapply (Entails.of_eq (xSet_in (xP d L fx) k.val hk).symm)
              isplitl [F8_src]; · iapply (Entails.of_eq (xP_pos d L fx v0).symm); iexact F8_src
              isplitr; · iapply (Entails.of_eq (xP_neg d L fx v1).symm); iempintro
              iexact HX
            isplitl [HOut F10_dst F11_dst]
            · iapply (Entails.of_eq (oSet_in (oMix d L fx (k.val + 1)) k.val hk (by omega)).symm)
              isplitl [F10_dst]; · iapply (Entails.of_eq ((oMix_lt d L fx (t := k.val + 1) (n := 2 * k.val - 2) (by omega)).trans (oQ_pos d L fx hm0.2)).symm); iexact F10_dst
              isplitl [F11_dst]
              · iapply (Entails.of_eq ((oMix_lt d L fx (t := k.val + 1) (n := 2 * k.val - 1) (by omega)).trans (oQ_pos d L fx (n := 2 * k.val - 1) (by have := hm1.2; rwa [show 2 * k.val + 1 - 2 = 2 * k.val - 1 by omega] at this))).symm)
                iapply (Entails.of_eq (congrArg (oqPiece d L fx) (show 2 * k.val + 1 - 2 = 2 * k.val - 1 by omega))); iexact F11_dst
              iapply (Entails.of_eq (oMix_core d L fx k.val)); iexact HOut
            isplitl [H4 F8]
            · iapply (Entails.of_eq (congrArg (inSlotV d L fx a4 cc19_scratch4.sem) (show 2 * k.val + 2 = 2 * (k.val + 1) by ring)))
              iapply (Entails.of_eq (inSlotV_neg d L fx v2).symm)
              isplitl [H4]; · iexists _; iexact H4
              iexact F8
            isplitl [F10 H6]
            · iapply (Entails.of_eq (congrArg (outSlotV d L fx a6 cc19_scratch6.sem) (show 2 * k.val + 2 = 2 * (k.val + 1) by ring)))
              iapply (fl_outV d L fx (off_5 L k v0) (k19_off5_inb L k k19_h2) v0 a4 a6 cc19_scratch6.sem f0 g4 g6' hl6 hin4); iexists _
              isplitr
              rotate_left
              · isplitl [F10]; · iexact F10
                iexact H6
              ipureintro; intro y; rfl
            isplitl [H5 F9]
            · iapply (Entails.of_eq (congrArg (inSlotV d L fx a5 cc19_scratch5.sem) (show 2 * k.val + 3 = 2 * (k.val + 1) + 1 by ring)))
              iapply (Entails.of_eq (inSlotV_neg d L fx v3').symm)
              isplitl [H5]; · iexists _; iexact H5
              iexact F9
            · iapply (Entails.of_eq (outSlotV_neg d L fx (m := 2 * (k.val + 1) + 1) (by intro h; apply v1; have := h.2; rwa [show 2 * (k.val + 1) + 1 - 2 = 2 * k.val + 1 by omega] at this)).symm)
              isplitl [R7]; · iexists _; iexact R7
              iexact F11
    · have hk0 : k.val = 0 := by omega
      -- the first trip: nothing to drain
      have k19_h1 : ¬ k19_cond1 k = 1#1 := fun h => absurd ((cond1_iff k).mp h) (by omega)
      have k19_h2 : k19_cond2 L k = 1#1 := cond2_iff L k
      have k19_h3 : k19_cond3 L k = 1#1 := (cond3_iff L k).mpr (by omega)
      have k19_h4 : ¬ k19_cond4 k = 1#1 := fun h => absurd ((cond4_iff k).mp h) (by omega)
      have k19_h5 : k19_cond5 L k = 1#1 := (cond5_iff L k).mpr (by first | (unfold valid big at *; omega) | (unfold big at *; omega) | omega)
      have k19_h6 : k19_cond6 L k = 1#1 := (cond6_iff L k).mpr (by first | (unfold valid big at *; omega) | (unfold big at *; omega) | omega)
      have v0 : valid L (2 * k.val) := by unfold valid big at *; omega
      have v1 : valid L (2 * k.val + 1) := by unfold valid big at *; omega
      have v2 : valid L (2 * k.val + 2) := by unfold valid big at *; omega
      have v3' : valid L (2 * k.val + 3) := by unfold valid big at *; omega
      have hm0 : ¬ (2 ≤ 2 * k.val ∧ valid L (2 * k.val - 2)) := by omega
      have hm1 : ¬ (2 ≤ 2 * k.val + 1 ∧ valid L (2 * k.val + 1 - 2)) := by omega
      ihave S8 := (Entails.of_eq (inSlotV_pos d L fx v0)) $$ S8
      icases S8 with ⟨%g4, %hin4, F8⟩
      ihave S9 := (Entails.of_eq (inSlotV_pos d L fx v1)) $$ S9
      icases S9 with ⟨%g5, %hin5, F9⟩
      ihave S10 := (Entails.of_eq (outSlotV_neg d L fx hm0)) $$ S10
      icases S10 with ⟨⟨%g6, R6⟩, F10⟩
      ihave S11 := (Entails.of_eq (outSlotV_neg d L fx hm1)) $$ S11
      icases S11 with ⟨⟨%g7, R7⟩, F11⟩
      ihave HX := (Entails.of_eq (xSet_out (xP d L fx) k.val hk)) $$ HX
      icases HX with ⟨X2, X3, HX⟩
      ihave X2 := (Entails.of_eq (xP_pos d L fx v2)) $$ X2
      ihave X2 := (Entails.of_eq (in_congr d L (off_6 L k v2).symm (in_inb L _) (k19_off6_inb L k k19_h3) fx)) $$ X2
      ihave X3 := (Entails.of_eq (xP_pos d L fx v3')) $$ X3
      ihave X3 := (Entails.of_eq (in_congr d L (off_11 L k v3').symm (in_inb L _) (k19_off11_inb L k k19_h6) fx)) $$ X3
      ihave HOut := (Entails.of_eq (oSet_out (oMix d L fx k.val) k.val hk)) $$ HOut
      icases HOut with ⟨Y0, Y1, HOut⟩
      ihave Y0 := (Entails.of_eq ((oMix_ge d L fx (t := k.val) (n := 2 * k.val) (by omega)).trans (oP_pos (F := F) d L v0))) $$ Y0
      icases Y0 with ⟨%f0, Y0⟩
      ihave Y0 := (Entails.of_eq (out_congr d L (off_5 L k v0).symm (out_inb L _) (k19_off5_inb L k k19_h2) f0)) $$ Y0
      ihave Y1 := (Entails.of_eq ((oMix_ge d L fx (t := k.val) (n := 2 * k.val + 1) (by omega)).trans (oP_pos (F := F) d L v1))) $$ Y1
      icases Y1 with ⟨%f1, Y1⟩
      ihave Y1 := (Entails.of_eq (out_congr d L (off_10 L k v1).symm (out_inb L _) (k19_off10_inb L k k19_h5) f1)) $$ Y1
      sl_exec
      sl_for (laneV0 d L g4) $$ [F8_dst R6]
      case region =>
        intro (j : Fin k19_t2_loop.trips) _
        unfold laneV0
        iintro ⟨HA, %g, HB, %hl⟩
        sl_exec
        sl_step
        isplitl [HA]; · iexact HA
        iexists _; isplitl [HB]; · iexact HB
        ipureintro; exact lanes_step d L a4 a6 g4 g j _ _ hl
      · unfold laneV0
        isplitl [F8_dst]; · iexact F8_dst
        iexists _; isplitl [R6]; · iexact R6
        ipureintro; exact lanes_zero d L a4 a6 g4 _
      iintro %_ HI
      unfold laneV0
      icases HI with ⟨H4, %g6', H6, %hl6⟩
      have hl6 : Lanes d L a4 a6 g4 g6' 200 := Eq.mp (congrArg (Lanes d L a4 a6 g4 g6') trips2) hl6
      sl_exec
      sl_for (laneV1 d L g5) $$ [F9_dst R7]
      case region =>
        intro (j : Fin k19_t3_loop.trips) _
        unfold laneV1
        iintro ⟨HA, %g, HB, %hl⟩
        sl_exec
        sl_step
        isplitl [HA]; · iexact HA
        iexists _; isplitl [HB]; · iexact HB
        ipureintro; exact lanes_step' d L a5 a7 g5 g j _ _ hl
      · unfold laneV1
        isplitl [F9_dst]; · iexact F9_dst
        iexists _; isplitl [R7]; · iexact R7
        ipureintro; exact lanes_zero d L a5 a7 g5 _
      iintro %_ HI
      unfold laneV1
      icases HI with ⟨H5, %g7', H7, %hl7⟩
      have hl7 : Lanes d L a5 a7 g5 g7' 200 := Eq.mp (congrArg (Lanes d L a5 a7 g5 g7') trips3) hl7
      sl_exec
      sl_step
      isplitr; · iexact Hmw
      isplitl [HO]
      · iexists _; isplitr
        rotate_left
        · iexact HO
        ipureintro; intro p hp
        rcases Finset.mem_insert.mp hp with rfl | hp
        · exact .inr rfl
        rcases Finset.mem_insert.mp hp with rfl | hp
        · exact .inr rfl
        exact hW' p hp
      isplitl [HX F8_src F9_src]
      · iapply (Entails.of_eq (xSet_in (xP d L fx) k.val hk).symm)
        isplitl [F8_src]; · iapply (Entails.of_eq (xP_pos d L fx v0).symm); iexact F8_src
        isplitl [F9_src]; · iapply (Entails.of_eq (xP_pos d L fx v1).symm); iexact F9_src
        iexact HX
      isplitl [HOut]
      · iapply (Entails.of_eq (congrArg (fun s => bigSep s (oMix d L fx (k.val + 1))) (show oCore k.val = oSet (k.val + 1) by rw [hk0]; decide)))
        iapply (Entails.of_eq (oMix_core d L fx k.val)); iexact HOut
      isplitl [F8]
      · iapply (Entails.of_eq (congrArg (inSlotV d L fx a4 cc19_scratch4.sem) (show 2 * k.val + 2 = 2 * (k.val + 1) by ring)))
        iapply (fl_inV d L fx (off_6 L k v2) (k19_off6_inb L k k19_h3) v2 a4 cc19_scratch4.sem); iexists _, _
        isplitr
        rotate_left
        · iexact F8
        ipureintro; intro y; rfl
      isplitl [F10 H6]
      · iapply (Entails.of_eq (congrArg (outSlotV d L fx a6 cc19_scratch6.sem) (show 2 * k.val + 2 = 2 * (k.val + 1) by ring)))
        iapply (fl_outV d L fx (off_5 L k v0) (k19_off5_inb L k k19_h2) v0 a4 a6 cc19_scratch6.sem f0 g4 g6' hl6 hin4); iexists _
        isplitr
        rotate_left
        · isplitl [F10]; · iexact F10
          iexact H6
        ipureintro; intro y; rfl
      isplitl [F9]
      · iapply (Entails.of_eq (congrArg (inSlotV d L fx a5 cc19_scratch5.sem) (show 2 * k.val + 3 = 2 * (k.val + 1) + 1 by ring)))
        iapply (fl_inV d L fx (off_11 L k v3') (k19_off11_inb L k k19_h6) v3' a5 cc19_scratch5.sem); iexists _, _
        isplitr
        rotate_left
        · iexact F9
        ipureintro; intro y; rfl
      · iapply (Entails.of_eq (congrArg (outSlotV d L fx a7 cc19_scratch7.sem) (show 2 * k.val + 1 + 2 = 2 * (k.val + 1) + 1 by ring)))
        iapply (fl_outV d L fx (off_10 L k v1) (k19_off10_inb L k k19_h5) v1 a5 a7 cc19_scratch7.sem f1 g5 g7' hl7 hin5); iexists _
        isplitr
        rotate_left
        · isplitl [F11]; · iexact F11
          iexact H7
        ipureintro; intro y; rfl
  · unfold invV
    isplitr; · iexact Hmw
    isplitl [HO]
    · iexists W; isplitr
      · ipureintro; exact fun p hp => .inl hp
      · iexact HO
    isplitl [HX]; · iexact HX
    isplitl [HOut]; · iapply (Entails.of_eq (oMix_zero d L fx).symm); iexact HOut
    isplitl [S8]; · iexact S8
    isplitl [H6 Hs10]
    · rw [outSlotV_neg d L fx (by omega)]; isplitl [H6]; · iexists _; iexact H6
      iexact Hs10
    isplitl [S9]; · iexact S9
    rw [outSlotV_neg d L fx (by omega)]; isplitl [H7]; · iexists _; iexact H7
    iexact Hs11
  iintro %acc' HI
  ihave HI := (Entails.of_eq (congrArg (fun t => invV d L O W fx t acc') trips1)) $$ HI
  unfold invV
  icases HI with ⟨-, ⟨%W', %hW', HO⟩, HX, HOut, S8, S10, S9, S11⟩
  have nv16 : ¬ valid L (2 * 8) := by unfold valid; omega
  have nv17 : ¬ valid L (2 * 8 + 1) := by unfold valid; omega
  have hm14 : 2 ≤ 2 * 8 ∧ valid L (2 * 8 - 2) := ⟨by omega, Or.inl (by omega)⟩
  ihave S8 := (Entails.of_eq (inSlotV_neg d L fx nv16)) $$ S8
  icases S8 with ⟨⟨%g4', H4⟩, Hs8⟩
  ihave S9 := (Entails.of_eq (inSlotV_neg d L fx nv17)) $$ S9
  icases S9 with ⟨⟨%g5', H5⟩, Hs9⟩
  ihave S10 := (Entails.of_eq (outSlotV_pos d L fx hm14)) $$ S10
  icases S10 with ⟨%g6', F10, R6⟩
  by_cases hb : big L
  · have k19_h8 : k19_cond8 L = 1#1 := (cond8_iff L).mpr hb
    have hm15 : 2 ≤ 2 * 8 + 1 ∧ valid L (2 * 8 + 1 - 2) := ⟨by omega, Or.inr ⟨by omega, hb⟩⟩
    ihave S11 := (Entails.of_eq (outSlotV_pos d L fx hm15)) $$ S11
    icases S11 with ⟨%g7', F11, R7⟩
    sl_exec
    sl_step
    isplitl [HX]; · iapply (xRange_end d L fx); iexact HX
    isplitl [HOut F10_dst F11_dst]
    · iapply (Entails.of_eq (oRange_end (oQ d L fx)).symm)
      isplitl [F10_dst]; · iapply (Entails.of_eq (oQ_pos d L fx hm14.2).symm); iexact F10_dst
      isplitl [F11_dst]; · iapply (Entails.of_eq (oQ_pos d L fx hm15.2).symm); iexact F11_dst
      iapply (Entails.of_eq (oMix_end d L fx)); iexact HOut
    isplitl [H4]; · iexists _; iexact H4
    isplitl [H5]; · iexists _; iexact H5
    isplitl [R6]; · iexists _; iexact R6
    isplitl [R7]; · iexists _; iexact R7
    isplitl [Hs8]; · iexact Hs8
    isplitl [Hs9]; · iexact Hs9
    isplitl [F10]; · iexact F10
    isplitl [F11]; · iexact F11
    isplitl [HO]
    · iexists _; isplitr
      rotate_left
      · iexact HO
      ipureintro; intro p hp
      rcases Finset.mem_insert.mp hp with rfl | hp
      · exact .inr rfl
      rcases Finset.mem_insert.mp hp with rfl | hp
      · exact .inr rfl
      exact hW' p hp
    iexact HR
  · have k19_h8 : ¬ k19_cond8 L = 1#1 := fun h => hb ((cond8_iff L).mp h)
    have hm15 : ¬ (2 ≤ 2 * 8 + 1 ∧ valid L (2 * 8 + 1 - 2)) := by intro h; have := h.2; unfold valid at this; omega
    ihave S11 := (Entails.of_eq (outSlotV_neg d L fx hm15)) $$ S11
    icases S11 with ⟨⟨%g7', R7⟩, F11⟩
    sl_exec
    sl_step
    isplitl [HX]; · iapply (xRange_end d L fx); iexact HX
    isplitl [HOut F10_dst]
    · iapply (Entails.of_eq (oRange_end (oQ d L fx)).symm)
      isplitl [F10_dst]; · iapply (Entails.of_eq (oQ_pos d L fx hm14.2).symm); iexact F10_dst
      isplitr; · iapply (Entails.of_eq (oQ_neg d L fx (n := 15) (by unfold valid; omega)).symm); iempintro
      iapply (Entails.of_eq (oMix_end d L fx)); iexact HOut
    isplitl [H4]; · iexists _; iexact H4
    isplitl [H5]; · iexists _; iexact H5
    isplitl [R6]; · iexists _; iexact R6
    isplitl [R7]; · iexists _; iexact R7
    isplitl [Hs8]; · iexact Hs8
    isplitl [Hs9]; · iexact Hs9
    isplitl [F10]; · iexact F10
    isplitl [F11]; · iexact F11
    isplitl [HO]
    · iexists _; isplitr
      rotate_left
      · iexact HO
      ipureintro; intro p hp
      rcases Finset.mem_insert.mp hp with rfl | hp
      · exact .inr rfl
      exact hW' p hp
    iexact HR

/-! The subcore's scoped storage: the four staging buffers and the four semaphores of this call, and the rest. -/

abbrev c8 : GSem nD τ sig := (thr d L, SemLoc.dma cc19_scratch4.sem)
abbrev c9 : GSem nD τ sig := (thr d L, SemLoc.dma cc19_scratch5.sem)
abbrev c10 : GSem nD τ sig := (thr d L, SemLoc.dma cc19_scratch6.sem)
abbrev c11 : GSem nD τ sig := (thr d L, SemLoc.dma cc19_scratch7.sem)

omit [FloatOps F] in
theorem ownSems0_V :
    (ownSems0 (thr d L) : sProp 𝕄)
      = iprop(semVal (c8 d L) 0 ∗ semVal (c9 d L) 0 ∗ semVal (c10 d L) 0 ∗ semVal (c11 d L) 0
          ∗ bigSep (((((ownCells (thr d L)).erase (c8 d L)).erase (c9 d L)).erase (c10 d L)).erase (c11 d L)) fun g => semVal g 0) := by
  unfold SparseCore.Cfg.ownSems0
  rw [SparseCore.bigSep_erase' ((mem_ownCells (g := c8 d L)).mpr ⟨rfl, by
      show (SemLoc.dma cc19_scratch4.sem : SemLoc sig).isScoped .scVector = true; decide⟩),
    SparseCore.bigSep_erase' (Finset.mem_erase.mpr ⟨fun e => absurd (Prod.mk.inj e).2 (by decide), (mem_ownCells (g := c9 d L)).mpr ⟨rfl, by
      show (SemLoc.dma cc19_scratch5.sem : SemLoc sig).isScoped .scVector = true; decide⟩⟩),
    SparseCore.bigSep_erase' (Finset.mem_erase.mpr ⟨fun e => absurd (Prod.mk.inj e).2 (by decide), Finset.mem_erase.mpr ⟨fun e => absurd (Prod.mk.inj e).2 (by decide),
      (mem_ownCells (g := c10 d L)).mpr ⟨rfl, by show (SemLoc.dma cc19_scratch6.sem : SemLoc sig).isScoped .scVector = true; decide⟩⟩⟩),
    SparseCore.bigSep_erase' (Finset.mem_erase.mpr ⟨fun e => absurd (Prod.mk.inj e).2 (by decide), Finset.mem_erase.mpr ⟨fun e => absurd (Prod.mk.inj e).2 (by decide),
      Finset.mem_erase.mpr ⟨fun e => absurd (Prod.mk.inj e).2 (by decide),
      (mem_ownCells (g := c11 d L)).mpr ⟨rfl, by show (SemLoc.dma cc19_scratch7.sem : SemLoc sig).isScoped .scVector = true; decide⟩⟩⟩⟩)]

abbrev pV (L : grid19.Coords) : Proc τ := Proc.scVector (cV L) (jV L)

omit [FloatOps F] in
theorem ownBufs_V :
    (ownBufs (thr d L) : sProp 𝕄)
      = iprop((∃ f, (thr d L).loc cc19_scratch0 ↦{fullShare} f) ∗ (∃ f, (thr d L).loc cc19_scratch1 ↦{fullShare} f)
          ∗ (∃ f, (thr d L).loc cc19_scratch2 ↦{fullShare} f) ∗ (∃ f, (thr d L).loc cc19_scratch3 ↦{fullShare} f)
          ∗ bigSep (((((ownRefs (τ := τ) (pV L)).erase ((pV L).devRef cc19_scratch0)).erase ((pV L).devRef cc19_scratch1)).erase
              ((pV L).devRef cc19_scratch2)).erase ((pV L).devRef cc19_scratch3))
              fun b => iprop(∃ f, ((d, b) : Loc nD τ sig) ↦{fullShare} f)) := by
  unfold SparseCore.Cfg.ownBufs
  refine (SparseCore.bigSep_erase' (SparseCore.Cfg.mem_ownRefs_of_owner (p := pV L) (b := (pV L).devRef cc19_scratch0) rfl)).trans ?_
  rw [SparseCore.bigSep_erase' (Finset.mem_erase.mpr ⟨fun e => absurd (Proc.devRef_injective _ e) (show (cc19_scratch1 : Ref sig .scVector) ≠ cc19_scratch0 by decide),
      SparseCore.Cfg.mem_ownRefs_of_owner (p := pV L) (b := (pV L).devRef cc19_scratch1) rfl⟩),
    SparseCore.bigSep_erase' (Finset.mem_erase.mpr ⟨fun e => absurd (Proc.devRef_injective _ e) (show (cc19_scratch2 : Ref sig .scVector) ≠ cc19_scratch1 by decide),
      Finset.mem_erase.mpr ⟨fun e => absurd (Proc.devRef_injective _ e) (show (cc19_scratch2 : Ref sig .scVector) ≠ cc19_scratch0 by decide),
      SparseCore.Cfg.mem_ownRefs_of_owner (p := pV L) (b := (pV L).devRef cc19_scratch2) rfl⟩⟩),
    SparseCore.bigSep_erase' (Finset.mem_erase.mpr ⟨fun e => absurd (Proc.devRef_injective _ e) (show (cc19_scratch3 : Ref sig .scVector) ≠ cc19_scratch2 by decide),
      Finset.mem_erase.mpr ⟨fun e => absurd (Proc.devRef_injective _ e) (show (cc19_scratch3 : Ref sig .scVector) ≠ cc19_scratch1 by decide),
      Finset.mem_erase.mpr ⟨fun e => absurd (Proc.devRef_injective _ e) (show (cc19_scratch3 : Ref sig .scVector) ≠ cc19_scratch0 by decide),
      SparseCore.Cfg.mem_ownRefs_of_owner (p := pV L) (b := (pV L).devRef cc19_scratch3) rfl⟩⟩⟩)]

/-- The rest of the subcore's scoped storage, which the task does not touch. -/
def restR : sProp 𝕄 :=
  iprop((bigSep (((((ownRefs (τ := τ) (pV L)).erase ((pV L).devRef cc19_scratch0)).erase ((pV L).devRef cc19_scratch1)).erase
              ((pV L).devRef cc19_scratch2)).erase ((pV L).devRef cc19_scratch3))
              fun b => iprop(∃ f, ((d, b) : Loc nD τ sig) ↦{fullShare} f))
      ∗ bigSep (((((ownCells (thr d L)).erase (c8 d L)).erase (c9 d L)).erase (c10 d L)).erase (c11 d L)) fun g => semVal g 0)

theorem body_pre (hO : ∀ g, O g none = 0) :
    iprop(levAts (K (F := F)).L (K (F := F)).lev ∗ emp ∗ goRes d L fx ∗ ownBufs (thr d L) ∗ ownSems0 (thr d L) ∗ owes (thr d L) O W)
      ⊢ runPre d L O W fx (restR (F := F) d L) := by
  rw [ownSems0_V, ownBufs_V]
  unfold goRes runPre restR
  iintro ⟨#Hlv, -, ⟨HX, HOut⟩, ⟨H4, H5, H6, H7, Hbufs⟩, ⟨Hs8, Hs9, Hs10, Hs11, Hsems⟩, HO⟩
  ihave Hmw := ((K (F := F)).mayWaits_none (thr := thr d L) hO) $$ Hlv
  isplitr; · iexact Hmw
  isplitl [HO]; · iexact HO
  isplitl [HX]; · iexact HX
  isplitl [HOut]; · iexact HOut
  isplitl [H4]; · iexact H4
  isplitl [H5]; · iexact H5
  isplitl [H6]; · iexact H6
  isplitl [H7]; · iexact H7
  isplitl [Hs8]; · iexact Hs8
  isplitl [Hs9]; · iexact Hs9
  isplitl [Hs10]; · iexact Hs10
  isplitl [Hs11]; · iexact Hs11
  isplitl [Hbufs]; · iexact Hbufs
  iexact Hsems

theorem body_post :
    runPost d L O W fx (restR (F := F) d L)
      ⊢ iprop(tdRes d L fx ∗ ownBufs (thr d L) ∗ ownSems0 (thr d L) ∗ ∃ W', ⌜∀ p ∈ W', p ∈ W ∨ p.2 = none⌝ ∗ owes (thr d L) O W') := by
  rw [ownSems0_V, ownBufs_V]
  unfold tdRes runPost restR
  iintro ⟨HX, HOut, H4, H5, H6, H7, Hs8, Hs9, Hs10, Hs11, HW, Hbufs, Hsems⟩
  isplitl [HX HOut]
  · isplitl [HX]; · iexact HX
    iexact HOut
  isplitl [H4 H5 H6 H7 Hbufs]
  · isplitl [H4]; · iexact H4
    isplitl [H5]; · iexact H5
    isplitl [H6]; · iexact H6
    isplitl [H7]; · iexact H7
    iexact Hbufs
  isplitl [Hs8 Hs9 Hs10 Hs11 Hsems]
  · isplitl [Hs8]; · iexact Hs8
    isplitl [Hs9]; · iexact Hs9
    isplitl [Hs10]; · iexact Hs10
    isplitl [Hs11]; · iexact Hs11
    iexact Hsems
  iexact HW

/-- The task in the launch theorem's shape: from what the call hands the tile and the subcore's scoped storage to
    what the tile hands back and the storage again. -/
theorem tile_body (hF : (K (F := F)).Facts) (hO : ∀ g, O g none = 0) :
    iprop(levAts (K (F := F)).L (K (F := F)).lev ∗ emp ∗ goRes d L fx ∗ scopedBufs (thr d L) ∗ scopedSems0 (thr d L) ∗ owes (thr d L) O W)
      ⊢ wp frame (wpE (defs₀ (F := F)) 𝒱₀ (thr d L) none) Set.univ
          (cc19_sc_group L xtW (Memref.isWhole_whole _) oW (Memref.isWhole_whole _) a4 (Memref.isWhole_whole _) a5 (Memref.isWhole_whole _)
            a6 (Memref.isWhole_whole _) a7 (Memref.isWhole_whole _) cc19_scratch4 cc19_scratch5 cc19_scratch6 cc19_scratch7)
          fun _ => iprop(tdRes d L fx ∗ scopedBufs (thr d L) ∗ scopedSems0 (thr d L)
            ∗ ∃ W', ⌜∀ p ∈ W', p ∈ W ∨ p.2 = none⌝ ∗ owes (thr d L) O W') := by
  rw [(K (F := F)).scopedBufs_V hF d (cV L) (jV L), SparseCore.Cfg.scopedSems0_V (Val := Elt F) d (cV L) (jV L)]
  exact (body_pre d L O W fx hO).trans ((tile_run d L O W fx (restR (F := F) d L)).trans (wp_mono frame _ _ fun _ => body_post d L O W fx))

end Tile

end Cert.Proof.TileK19

end
-- ==== Proof.TileBVal19.lean ====
/-
  What the staging buffers of one vector subcore hold while it copies a piece of 3200 consecutive elements of row 19 of
  the transposed argument into the flat result, read index by index. No program and no ownership here: only the contents.

  A transfer lands the piece in row 0 of an 8 × 3200 staging array (`InRow`: position (0, t) of that row holds element
  (0, pos + t) of the transposed argument, `pos` the piece's first column). A loop of 200 trips copies that row, 16 lanes
  per trip, into the first 3200 elements of a flat staging array of 25600: trip `j` reads the 1 × 16 window at columns
  [16 j, 16 j + 16) of row 0 and writes it, flattened, at elements [16 j, 16 j + 16). After `j` trips the first 16 j
  elements of the flat array are the first 16 j elements of the row (`Lanes`); a trip extends the prefix by 16
  (`lanes_step`: an element below 16 j is outside the window written and keeps its value, an element of the window reads
  the lane written there, which is the row's element at the same column). A second transfer writes the first 3200
  elements of the flat array to the piece of the result at the same `pos`; so every element of that piece of the result
  holds the element of row 19 of the transposed argument at its own position (`out_written`): the composite of the three
  index maps t ↦ (0, pos + t) ↦ (0, t) ↦ t ↦ pos + t is the identity on positions of the row.
-/
import proofs.«206869_g37898791420194_cont_8to1_b_558_20_alg».proof.Proof.TileB19Defs
import proofs.«206869_g37898791420194_cont_8to1_b_558_20_alg».proof.Proof.Spec
import Idealize.ShloMosaic.Lib.WritesUnit
import Idealize.ShloMosaic.Lib.ValueLayout

noncomputable section

namespace Cert.Proof.TileBVal19

open Cert.Proof.TileB19 Cert.Kernel Cert.Kernel.Gen
open Idealize.ShloMosaic Idealize.ShloMosaic.ValueIdx

variable {F : FTy → Type} [FloatOps F]
variable (d : Dev nD) (L : grid19.Coords)
variable (fx : Buf (Elt F) ((Memref.whole main_v0_scv : Memref sig .scVector .hbm S22x1600000 .f32).view.loc (thr d L)))

abbrev rowRect : Rect S8x3200 := Rect.unit (s := S8x3200) ![0, 0] S1x3200.size inb_S8x3200_S1x3200_0_0

/-- row 0 of the staging array is piece n of the argument row -/
def InRow (a : Memref sig .scVector .vmem S8x3200 .f32) (ga : Buf (Elt F) (a.view.loc (thr d L))) (n : ℕ) : Prop :=
  ∀ y : S1x3200.Idx, a.view.read (Elt F) ga (rowRect.emb y) = (inM L n).view.read (Elt F) fx y

theorem inRow_fetch (a : Memref sig .scVector .vmem S8x3200 .f32) (gold : Buf (Elt F) (a.view.loc (thr d L)))
    (w : S1x3200.Idx → Elt F .f32) (n : ℕ) (hw : ∀ y, w y = (inM L n).view.read (Elt F) fx y) :
    InRow d L fx a (a.view.writes (Elt F) gold [⟨rowRect, w⟩]) n :=
  fun y => (View.read_writes_cons_emb a.view gold rowRect w [] y).trans (hw y)

def Lanes (a : Memref sig .scVector .vmem S8x3200 .f32) (b : Memref sig .scVector .vmem S25600 .f32)
    (ga : Buf (Elt F) (a.view.loc (thr d L))) (gb : Buf (Elt F) (b.view.loc (thr d L))) (j : ℕ) : Prop :=
  ∀ (r : ℕ) (hr : r < 3200), r < 16 * j →
    b.view.read (Elt F) gb (ix1 (⟨r, by omega⟩ : Fin 25600)) = a.view.read (Elt F) ga (ix2 (0 : Fin 8) (⟨r, hr⟩ : Fin 3200))

theorem lanes_zero (a : Memref sig .scVector .vmem S8x3200 .f32) (b : Memref sig .scVector .vmem S25600 .f32)
    (ga : Buf (Elt F) (a.view.loc (thr d L))) (gb : Buf (Elt F) (b.view.loc (thr d L))) : Lanes d L a b ga gb 0 := by
  intro r hr h; omega

/-- The 1 × 16 window at column `c` of the staging array, read at lane `t`, is element `(0, c + t)`. -/
theorem idx_window {off : Fin 2 → ℕ} {c : ℕ} (h : off = ![0, c]) (p : ∀ a', off a' + S1x16.size a' ≤ S8x3200.size a')
    (t : Fin 16) (hr : c + t.val < 3200) :
    (Rect.unit (s := S8x3200) off S1x16.size p).toLoadRect.idx (ix2 (0 : Fin 1) t) = ix2 (0 : Fin 8) (⟨c + t.val, hr⟩ : Fin 3200) := by
  subst h
  funext a'; apply Fin.ext
  rw [LoadRect.idx_apply]
  match a' with
  | ⟨0, _⟩ => show 0 + 1 * 0 = 0; omega
  | ⟨1, _⟩ => show c + 1 * t.val = c + t.val; omega

/-- One trip of a lane-copy loop, the offsets given by their closed forms. -/
theorem lanes_step_core (a : Memref sig .scVector .vmem S8x3200 .f32) (b : Memref sig .scVector .vmem S25600 .f32)
    (ga : Buf (Elt F) (a.view.loc (thr d L))) (gb : Buf (Elt F) (b.view.loc (thr d L)))
    (t : ℕ) {off3 : Fin 2 → ℕ} {off4 : Fin 1 → ℕ} (h3 : off3 = ![0, 16 * t]) (h4 : off4 = ![16 * t])
    (p3 : ∀ a', off3 a' + S1x16.size a' ≤ S8x3200.size a') (p4 : ∀ a', off4 a' + S16.size a' ≤ S25600.size a')
    (h : Lanes d L a b ga gb t) :
    Lanes d L a b ga (b.view.writes (Elt F) gb [⟨Rect.unit (s := S25600) off4 S16.size p4,
      shapeCast S16 (a.view.readAt (Elt F) (Rect.unit (s := S8x3200) off3 S1x16.size p3).toLoadRect ga) shapeCasts_S1x16_S16⟩]) (t + 1) := by
  intro r hr hlt
  by_cases hlo : r < 16 * t
  · refine (View.read_writes_cons_unit_of_not_mem b.view gb p4 _ [] _ h4 (0 : Fin 1) (Or.inl ?_)).trans (h r hr hlo)
    show r < 16 * t
    exact hlo
  · have hx : r - 16 * t < 16 := by omega
    refine (View.read_writes_cons_unit_of_mem b.view gb p4 _ [] _ (ix1 (⟨r - 16 * t, hx⟩ : Fin 16)) h4 ?_).trans ?_
    · intro a'
      match a' with
      | ⟨0, _⟩ => show r = 16 * t + (r - 16 * t); omega
    · rw [shapeCast_1a_a_apply, View.readAt_apply, idx_window h3 p3 ⟨r - 16 * t, hx⟩ (by show 16 * t + (r - 16 * t) < 3200; omega)]
      congr 2
      apply Fin.ext
      show 16 * t + (r - 16 * t) = r
      omega

theorem lanes_step (a : Memref sig .scVector .vmem S8x3200 .f32) (b : Memref sig .scVector .vmem S25600 .f32)
    (ga : Buf (Elt F) (a.view.loc (thr d L))) (gb : Buf (Elt F) (b.view.loc (thr d L)))
    (j : Fin k19_t2_loop.trips) (p3 : ∀ a', (k19_off3 j) a' + S1x16.size a' ≤ S8x3200.size a')
    (p4 : ∀ a', (k19_off4 j) a' + S16.size a' ≤ S25600.size a') (h : Lanes d L a b ga gb j.val) :
    Lanes d L a b ga (b.view.writes (Elt F) gb [⟨Rect.unit (s := S25600) (k19_off4 j) S16.size p4,
      k19_pay1 (a.view.readAt (Elt F) (Rect.unit (s := S8x3200) (k19_off3 j) S1x16.size p3).toLoadRect ga)⟩]) (j.val + 1) :=
  lanes_step_core d L a b ga gb j.val (k19_off3_eq j) (k19_off4_eq j) p3 p4 h

theorem lanes_step' (a : Memref sig .scVector .vmem S8x3200 .f32) (b : Memref sig .scVector .vmem S25600 .f32)
    (ga : Buf (Elt F) (a.view.loc (thr d L))) (gb : Buf (Elt F) (b.view.loc (thr d L)))
    (j : Fin k19_t3_loop.trips) (p3 : ∀ a', (k19_off8 j) a' + S1x16.size a' ≤ S8x3200.size a')
    (p4 : ∀ a', (k19_off9 j) a' + S16.size a' ≤ S25600.size a') (h : Lanes d L a b ga gb j.val) :
    Lanes d L a b ga (b.view.writes (Elt F) gb [⟨Rect.unit (s := S25600) (k19_off9 j) S16.size p4,
      k19_pay2 (a.view.readAt (Elt F) (Rect.unit (s := S8x3200) (k19_off8 j) S1x16.size p3).toLoadRect ga)⟩]) (j.val + 1) :=
  lanes_step_core d L a b ga gb j.val (k19_off8_eq j) (k19_off9_eq j) p3 p4 h

/-- Position `y` of the write-out window of the flat staging array is its element `y 0`. -/
theorem stg_emb (y : S3200.Idx) (hy : (y 0).val < 25600) :
    (Rect.unit (s := S25600) ![0] S3200.size inb_S25600_S3200_0).emb y = ix1 (⟨(y 0).val, hy⟩ : Fin 25600) := by
  funext a'; apply Fin.ext
  match a' with
  | ⟨0, _⟩ => show 0 + 1 * (y 0).val = (y 0).val; omega

/-- Position `(0, t)` of row 0 of the staging array is its element `(0, t)`. -/
theorem row_emb (t : Fin 3200) : rowRect.emb (ix2 (0 : Fin 1) t) = ix2 (0 : Fin 8) t := by
  funext a'; apply Fin.ext
  match a' with
  | ⟨0, _⟩ => show 0 + 1 * 0 = 0; omega
  | ⟨1, _⟩ => show 0 + 1 * t.val = t.val; omega

/-- Position `(0, t)` of piece `n` of the argument row is element `(0, pos + t)` of the transposed argument;
    position `y` of piece `n` of the result is element `pos + y 0` of the result. -/
theorem in_emb (n : ℕ) (t : Fin 3200) (h : pos L n + t.val < 1600000) :
    (inM L n).view.emb (ix2 (0 : Fin 1) t) = ix2 (19 : Fin 22) (⟨pos L n + t.val, h⟩ : Fin 1600000) := by
  funext a'; apply Fin.ext
  match a' with
  | ⟨0, _⟩ => show 19 + 1 * 0 = 19; omega
  | ⟨1, _⟩ => show pos L n + 1 * t.val = pos L n + t.val; omega

theorem out_emb (n : ℕ) (y : S3200.Idx) (h : pos L n + (y 0).val < 1600000) :
    (outM L n).view.emb y = ix1 (⟨pos L n + (y 0).val, h⟩ : Fin 1600000) := by
  funext a'; apply Fin.ext
  match a' with
  | ⟨0, _⟩ => show pos L n + 1 * (y 0).val = pos L n + (y 0).val; omega

/-- Both lane-copy loops run 200 trips: 200 · 16 = 3200, the whole row. -/
theorem trips2 : k19_t2_loop.trips = 200 := by decide
theorem trips3 : k19_t3_loop.trips = 200 := by decide

/-- After all its trips a lane-copy loop has copied the whole row. -/
theorem lanes_all (a : Memref sig .scVector .vmem S8x3200 .f32) (b : Memref sig .scVector .vmem S25600 .f32)
    (ga : Buf (Elt F) (a.view.loc (thr d L))) (gb : Buf (Elt F) (b.view.loc (thr d L)))
    (h : Lanes d L a b ga gb k19_t2_loop.trips) : Lanes d L a b ga gb 200 := trips2 ▸ h
theorem lanes_all' (a : Memref sig .scVector .vmem S8x3200 .f32) (b : Memref sig .scVector .vmem S25600 .f32)
    (ga : Buf (Elt F) (a.view.loc (thr d L))) (gb : Buf (Elt F) (b.view.loc (thr d L)))
    (h : Lanes d L a b ga gb k19_t3_loop.trips) : Lanes d L a b ga gb 200 := trips3 ▸ h

/-- The write-out of a piece: the first 3200 elements of the flat staging array, which the 200 lane copies filled from
    row 0 of the staging array, which the fetch filled from piece `n` of row 19 of the transposed argument, land at
    piece `n` of the result, at the same positions of the row. -/
theorem out_written (a : Memref sig .scVector .vmem S8x3200 .f32) (b : Memref sig .scVector .vmem S25600 .f32) (n : ℕ)
    (ga : Buf (Elt F) (a.view.loc (thr d L))) (gb : Buf (Elt F) (b.view.loc (thr d L)))
    (f0 : Buf (Elt F) ((outM L n).view.loc (thr d L))) (w : S3200.Idx → Elt F .f32)
    (hw : ∀ y, w y = (stg b).view.read (Elt F) gb y) (hl : Lanes d L a b ga gb 200) (hr : InRow d L fx a ga n) (hv : valid L n) :
    ∀ i ∈ (outM L n).view.set, ((outM L n).view.writes (Elt F) f0 [⟨Rect.whole _, w⟩]) i = Cert.Spec.row 19 fx i := by
  intro i hi
  obtain ⟨y, -, rfl⟩ := Finset.mem_map.mp hi
  have hy : (y 0).val < 3200 := (y 0).isLt
  have hp : pos L n + (y 0).val < 1600000 := by unfold pos; omega
  have e1 : (outM L n).view.writes (Elt F) f0 [⟨Rect.whole _, w⟩] ((outM L n).view.emb y) = w y := by
    have h := View.read_writes_cons_emb (outM L n).view f0 (Rect.whole _) w [] y
    rw [Rect.emb_whole_apply] at h
    exact (cast_eq _ _).symm.trans ((View.read_apply _ _).symm.trans h)
  have e2 : (stg b).view.read (Elt F) gb y = b.view.read (Elt F) gb (ix1 (⟨(y 0).val, by omega⟩ : Fin 25600)) :=
    congrArg (b.view.read (Elt F) gb) (stg_emb y (by omega))
  have e3 : a.view.read (Elt F) ga (ix2 (0 : Fin 8) (⟨(y 0).val, hy⟩ : Fin 3200))
      = (inM L n).view.read (Elt F) fx (ix2 (0 : Fin 1) (⟨(y 0).val, hy⟩ : Fin 3200)) :=
    (congrArg (a.view.read (Elt F) ga) (row_emb ⟨(y 0).val, hy⟩).symm).trans (hr _)
  have e4 : (inM L n).view.read (Elt F) fx (ix2 (0 : Fin 1) (⟨(y 0).val, hy⟩ : Fin 3200))
      = fx (ix2 (19 : Fin 22) (⟨pos L n + (y 0).val, hp⟩ : Fin 1600000)) :=
    ((View.read_apply _ _).trans (cast_eq _ _)).trans (congrArg fx (in_emb L n ⟨(y 0).val, hy⟩ hp))
  have e5 : Cert.Spec.row 19 fx ((outM L n).view.emb y) = fx (ix2 (19 : Fin 22) (⟨pos L n + (y 0).val, hp⟩ : Fin 1600000)) :=
    (congrArg (Cert.Spec.row 19 fx) (out_emb L n y hp)).trans (Cert.Spec.row_apply 19 fx _)
  exact e1.trans ((hw y).trans (e2.trans ((hl _ hy (by omega)).trans (e3.trans (e4.trans e5.symm)))))

end Cert.Proof.TileBVal19

end
-- ==== Proof.TileB19.lean ====
/-
  One vector subcore's task of copy kernel 19 (counting from 0), run symbolically: the two fetch slots and two write-out slots
  between trips of the main loop (what each transfer in flight will hand back, and what the staging buffers hold), the
  invariant of the main loop and of the two lane-copy loops, and the task's run — from the tile's pieces of row 19 of
  the transposed argument and of the result to the same pieces with the result holding the row's elements.
-/
import proofs.«206869_g37898791420194_cont_8to1_b_558_20_alg».proof.Proof.TileB19Defs
import proofs.«206869_g37898791420194_cont_8to1_b_558_20_alg».proof.Proof.TileBVal19
noncomputable section

namespace Cert.Proof.TileB19

open Cert.Kernel Cert.Kernel.Gen Cert.Proof.TileBVal19
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 22) (Elt F) ℕ UU ℕ
local notation "xtW" => (Memref.whole Cert.Kernel.main_v0_scv : Memref Cert.Kernel.sig Kind.scVector Space.hbm Cert.Kernel.S22x1600000 EltTy.f32)
local notation "oW" => (Memref.whole Cert.Kernel.main_v20_scv : Memref Cert.Kernel.sig Kind.scVector Space.hbm Cert.Kernel.S1600000 EltTy.f32)
local notation "a4" => (Memref.whole Cert.Kernel.cc19_scratch0 : Memref Cert.Kernel.sig Kind.scVector Space.vmem Cert.Kernel.S8x3200 EltTy.f32)
local notation "a5" => (Memref.whole Cert.Kernel.cc19_scratch1 : Memref Cert.Kernel.sig Kind.scVector Space.vmem Cert.Kernel.S8x3200 EltTy.f32)
local notation "a6" => (Memref.whole Cert.Kernel.cc19_scratch2 : Memref Cert.Kernel.sig Kind.scVector Space.vmem Cert.Kernel.S25600 EltTy.f32)
local notation "a7" => (Memref.whole Cert.Kernel.cc19_scratch3 : Memref Cert.Kernel.sig Kind.scVector Space.vmem Cert.Kernel.S25600 EltTy.f32)

variable [FloatOps F]

section Tile

variable (d : Dev nD) (L : grid19.Coords)
variable (O : CellTallies nD τ sig (HIx 22)) (W : Waits sig (HIx 22))
variable (fx : Buf (Elt F) ((xtW).view.loc (thr d L)))

/-- Piece `n` of the result at its final contents. -/
abbrev oqPiece (n : ℕ) : sProp 𝕄 := (outM L n).view.loc (thr d L) ↦[(outM L n).view.set]{fullShare} (Cert.Spec.row 19 fx)
theorem oQ_pos {n : ℕ} (v : valid L n) : oQ d L fx n = oqPiece d L fx n := if_pos v
theorem oQ_neg {n : ℕ} (v : ¬ valid L n) : oQ d L fx n = iprop(emp) := if_neg v

/-- A fetch slot, remembering that the staging row it will hand back holds the piece. -/
def inSlotV (a : Memref sig .scVector .vmem S8x3200 .f32) (sm : DmaSem sig) (n : ℕ) : sProp 𝕄 :=
  if valid L n then
    iprop(∃ g, ⌜InRow d L fx a g n⌝ ∗ Transfers.Flight countersEmb (thr d L) (SemLoc.dma sm) (default : HIx 22) NN
      iprop((a.view.loc (thr d L) ↦{fullShare} g) ∗ xtPiece d L fx n))
  else iprop((∃ g, a.view.loc (thr d L) ↦{fullShare} g) ∗ semVal (thr d L, SemLoc.dma sm) 0)

/-- A write-out slot: the piece in flight will come back holding the row's elements. -/
def outSlotV (a : Memref sig .scVector .vmem S25600 .f32) (sm : DmaSem sig) (m : ℕ) : sProp 𝕄 :=
  if 2 ≤ m ∧ valid L (m - 2) then
    iprop(∃ g, Transfers.Flight countersEmb (thr d L) (SemLoc.dma sm) (default : HIx 22) NN
        iprop(oqPiece d L fx (m - 2) ∗ ((stg a).view.loc (thr d L) ↦[(stg a).view.set]{fullShare} g))
      ∗ (a.view.loc (thr d L) ↦[Finset.univ \ (stg a).view.set]{fullShare} g))
  else iprop((∃ g, a.view.loc (thr d L) ↦{fullShare} g) ∗ semVal (thr d L, SemLoc.dma sm) 0)

theorem inSlotV_pos {a : Memref sig .scVector .vmem S8x3200 .f32} {sm : DmaSem sig} {n : ℕ} (v : valid L n) :
    inSlotV d L fx a sm n = iprop(∃ g, ⌜InRow d L fx a g n⌝ ∗ Transfers.Flight countersEmb (thr d L) (SemLoc.dma sm) (default : HIx 22) NN
      iprop((a.view.loc (thr d L) ↦{fullShare} g) ∗ xtPiece d L fx n)) := by unfold inSlotV; rw [if_pos v]
theorem inSlotV_neg {a : Memref sig .scVector .vmem S8x3200 .f32} {sm : DmaSem sig} {n : ℕ} (v : ¬ valid L n) :
    inSlotV d L fx a sm n = iprop((∃ g, a.view.loc (thr d L) ↦{fullShare} g) ∗ semVal (thr d L, SemLoc.dma sm) 0) := by
  unfold inSlotV; rw [if_neg v]
theorem outSlotV_pos {a : Memref sig .scVector .vmem S25600 .f32} {sm : DmaSem sig} {m : ℕ} (h : 2 ≤ m ∧ valid L (m - 2)) :
    outSlotV d L fx a sm m = iprop(∃ g, Transfers.Flight countersEmb (thr d L) (SemLoc.dma sm) (default : HIx 22) NN
        iprop(oqPiece d L fx (m - 2) ∗ ((stg a).view.loc (thr d L) ↦[(stg a).view.set]{fullShare} g))
      ∗ (a.view.loc (thr d L) ↦[Finset.univ \ (stg a).view.set]{fullShare} g)) := by unfold outSlotV; rw [if_pos h]
theorem outSlotV_neg {a : Memref sig .scVector .vmem S25600 .f32} {sm : DmaSem sig} {m : ℕ} (h : ¬ (2 ≤ m ∧ valid L (m - 2))) :
    outSlotV d L fx a sm m = iprop((∃ g, a.view.loc (thr d L) ↦{fullShare} g) ∗ semVal (thr d L, SemLoc.dma sm) 0) := by
  unfold outSlotV; rw [if_neg h]

/-- A fetch just issued: the staging row will hold what the transfer reads, which is the piece. -/
theorem fl_inV {off : Fin 2 → ℕ} {n : ℕ} (h : off = ![19, pos L n]) (p : ∀ a, off a + S1x3200.size a ≤ S22x1600000.size a) (v : valid L n)
    (a : Memref sig .scVector .vmem S8x3200 .f32) (sm : DmaSem sig) :
    (iprop(∃ (gold : Buf (Elt F) (a.view.loc (thr d L))) (w : S1x3200.Idx → Elt F .f32),
        ⌜∀ y, w y = ((xtW).slice (Rect.unit (s := S22x1600000) off S1x3200.size p) (fun _ => rfl)).view.read (Elt F) fx y⌝
        ∗ Transfers.Flight countersEmb (thr d L) (SemLoc.dma sm) (default : HIx 22) NN
          iprop((a.view.loc (thr d L) ↦{fullShare} a.view.writes (Elt F) gold [⟨rowRect, w⟩])
            ∗ (((xtW).slice (Rect.unit (s := S22x1600000) off S1x3200.size p) (fun _ => rfl)).view.loc (thr d L)
                ↦[((xtW).slice (Rect.unit (s := S22x1600000) off S1x3200.size p) (fun _ => rfl)).view.set]{fullShare} fx))) : sProp 𝕄)
      ⊢ inSlotV d L fx a sm n := by
  subst h
  rw [inSlotV_pos d L fx v]
  iintro ⟨%gold, %w, %hw, H⟩
  iexists _
  isplitr
  · ipureintro; exact inRow_fetch d L fx a gold w n hw
  · iexact H

set_option maxHeartbeats 4000000 in
/-- A write-out just issued from a flat staging buffer whose first 3200 elements are the staging row, itself piece
    `n` of the argument row: the piece of the result will hold the row's elements. -/
theorem fl_outV {off : Fin 1 → ℕ} {n : ℕ} (h : off = ![pos L n]) (p : ∀ a, off a + S3200.size a ≤ S1600000.size a) (v : valid L n)
    (ar : Memref sig .scVector .vmem S8x3200 .f32) (a : Memref sig .scVector .vmem S25600 .f32) (sm : DmaSem sig)
    (f0 : Buf (Elt F) ((oW).view.loc (thr d L))) (ga : Buf (Elt F) (ar.view.loc (thr d L))) (gb : Buf (Elt F) (a.view.loc (thr d L)))
    (hl : Lanes d L ar a ga gb 200) (hr : InRow d L fx ar ga n) :
    (iprop(∃ (w : S3200.Idx → Elt F .f32),
        ⌜∀ y, w y = (stg a).view.read (Elt F) gb y⌝
        ∗ Transfers.Flight countersEmb (thr d L) (SemLoc.dma sm) (default : HIx 22) NN
          iprop((((oW).slice (Rect.unit (s := S1600000) off S3200.size p) (fun _ => rfl)).view.loc (thr d L)
                ↦[((oW).slice (Rect.unit (s := S1600000) off S3200.size p) (fun _ => rfl)).view.set]{fullShare}
                  (((oW).slice (Rect.unit (s := S1600000) off S3200.size p) (fun _ => rfl)).view.writes (Elt F) f0 [⟨Rect.whole _, w⟩]))
            ∗ ((stg a).view.loc (thr d L) ↦[(stg a).view.set]{fullShare} gb))
        ∗ (a.view.loc (thr d L) ↦[Finset.univ \ (stg a).view.set]{fullShare} gb)) : sProp 𝕄)
      ⊢ outSlotV d L fx a sm (n + 2) := by
  subst h
  rw [outSlotV_pos d L fx (m := n + 2) ⟨by omega, by simpa using v⟩]
  iintro ⟨%w, %hw, H, R⟩
  have hD : (iprop(((outM L n).view.loc (thr d L) ↦[(outM L n).view.set]{fullShare} ((outM L n).view.writes (Elt F) f0 [⟨Rect.whole _, w⟩]))
          ∗ ((stg a).view.loc (thr d L) ↦[(stg a).view.set]{fullShare} gb)) : sProp 𝕄)
      ⊢ iprop(oqPiece d L fx (n + 2 - 2) ∗ ((stg a).view.loc (thr d L) ↦[(stg a).view.set]{fullShare} gb)) := by
    rw [Nat.add_sub_cancel]
    have e : (((outM L n).view.loc (thr d L) ↦[(outM L n).view.set]{fullShare} ((outM L n).view.writes (Elt F) f0 [⟨Rect.whole _, w⟩])) : sProp 𝕄)
        = oqPiece d L fx n := pointsTo_congr (out_written d L fx ar a n ga gb f0 w hw hl hr v)
    iintro ⟨H1, H2⟩
    isplitl [H1]
    · iapply (Entails.of_eq e); iexact H1
    · iexact H2
  iexists gb
  isplitl [H]
  · iapply (Transfers.Flight_mono countersEmb (thr d L) hD); iexact H
  · iexact R

/-- The result pieces outside the slots before trip `t`: those already written hold the row, the others some contents. -/
def oMix (t n : ℕ) : sProp 𝕄 := if n + 2 < 2 * t then oQ d L fx n else oP (F := F) d L n
theorem oMix_lt {t n : ℕ} (h : n + 2 < 2 * t) : oMix d L fx t n = oQ d L fx n := if_pos h
theorem oMix_ge {t n : ℕ} (h : ¬ n + 2 < 2 * t) : oMix d L fx t n = oP (F := F) d L n := if_neg h
theorem oMix_core (k : ℕ) : bigSep (oCore k) (oMix d L fx k) = bigSep (oCore k) (oMix d L fx (k + 1)) :=
  bigSep_congr fun n hn => by
    have hn' : n + 2 ≠ 2 * k ∧ n + 2 ≠ 2 * k + 1 ∧ n ≠ 2 * k ∧ n ≠ 2 * k + 1 := by
      simp only [oCore, Finset.mem_filter, Finset.mem_range] at hn; exact hn.2
    by_cases h : n + 2 < 2 * k
    · rw [oMix_lt d L fx h, oMix_lt d L fx (by omega)]
    · rw [oMix_ge d L fx h, oMix_ge d L fx (by omega)]
theorem oMix_zero : bigSep (oSet 0) (oMix d L fx 0) = bigSep (Finset.range 18) (oP (F := F) d L) := by
  rw [oSet_zero]; exact bigSep_congr fun n _ => oMix_ge d L fx (by omega)
theorem oMix_end : bigSep (oSet 8) (oMix d L fx 8) = bigSep (oSet 8) (oQ d L fx) :=
  bigSep_congr fun n hn => by
    have hn' : n < 18 ∧ n + 2 ≠ 16 ∧ n + 2 ≠ 17 := by simpa only [oSet, Finset.mem_filter, Finset.mem_range] using hn
    by_cases h : n + 2 < 2 * 8
    · exact oMix_lt d L fx h
    · rw [oMix_ge d L fx h, oP_neg (F := F) d L (by unfold valid; omega), oQ_neg d L fx (by unfold valid; omega)]

/-- The lane-copy loops: before trip `j` the first 16·j elements of the flat staging buffer are the staging row's. -/
def laneV0 (g4 : Buf (Elt F) ((a4).view.loc (thr d L))) (j : ℕ) (_ : PUnit) : sProp 𝕄 :=
  iprop(((a4).view.loc (thr d L) ↦{fullShare} g4) ∗ (∃ g, ((a6).view.loc (thr d L) ↦{fullShare} g) ∗ ⌜Lanes d L a4 a6 g4 g j⌝))
def laneV1 (g5 : Buf (Elt F) ((a5).view.loc (thr d L))) (j : ℕ) (_ : PUnit) : sProp 𝕄 :=
  iprop(((a5).view.loc (thr d L) ↦{fullShare} g5) ∗ (∃ g, ((a7).view.loc (thr d L) ↦{fullShare} g) ∗ ⌜Lanes d L a5 a7 g5 g j⌝))

def invV (t : ℕ) (_ : PUnit) : sProp 𝕄 :=
  iprop(Transfers.MayWaits (thr d L) (none : HIx 22) O
    ∗ (∃ W', ⌜∀ p ∈ W', p ∈ W ∨ p.2 = none⌝ ∗ owes (thr d L) O W')
    ∗ bigSep (xSet t) (xP d L fx) ∗ bigSep (oSet t) (oMix d L fx t)
    ∗ inSlotV d L fx a4 cc19_scratch4.sem (2 * t) ∗ outSlotV d L fx a6 cc19_scratch6.sem (2 * t)
    ∗ inSlotV d L fx a5 cc19_scratch5.sem (2 * t + 1) ∗ outSlotV d L fx a7 cc19_scratch7.sem (2 * t + 1))

/-- After the last trip nothing of the argument row is in a slot: the tile holds all its pieces. -/
theorem xRange_end : bigSep (xSet 8) (xP d L fx) ⊢ bigSep (Finset.range 18) (xP d L fx) := by
  rw [two_out (s := Finset.range 18) (a := 16) (b := 17) (by decide) (by decide) (by decide),
    show ((Finset.range 18).erase 16).erase 17 = xSet 8 by decide]
  iintro H
  isplitr; · iapply (Entails.of_eq (xP_neg d L fx (n := 16) (by unfold valid; omega)).symm); iempintro
  isplitr; · iapply (Entails.of_eq (xP_neg d L fx (n := 17) (by unfold valid; omega)).symm); iempintro
  iexact H
omit [FloatOps F] in
theorem oRange_end (Φ : ℕ → sProp 𝕄) : bigSep (Finset.range 18) Φ = iprop(Φ 14 ∗ Φ 15 ∗ bigSep (oSet 8) Φ) := by
  rw [two_out (s := Finset.range 18) (a := 14) (b := 15) (by decide) (by decide) (by decide),
    show ((Finset.range 18).erase 14).erase 15 = oSet 8 by decide]

/-- What the run starts from and ends with, beside an untouched rest `R`. -/
def runPre (R : sProp 𝕄) : sProp 𝕄 :=
    iprop(Transfers.MayWaits (thr d L) (none : HIx 22) O ∗ owes (thr d L) O W
        ∗ bigSep (Finset.range 18) (xP d L fx) ∗ bigSep (Finset.range 18) (oP (F := F) d L)
        ∗ (∃ g, (a4).view.loc (thr d L) ↦{fullShare} g) ∗ (∃ g, (a5).view.loc (thr d L) ↦{fullShare} g)
        ∗ (∃ g, (a6).view.loc (thr d L) ↦{fullShare} g) ∗ (∃ g, (a7).view.loc (thr d L) ↦{fullShare} g)
        ∗ semVal (thr d L, SemLoc.dma cc19_scratch4.sem) 0 ∗ semVal (thr d L, SemLoc.dma cc19_scratch5.sem) 0
        ∗ semVal (thr d L, SemLoc.dma cc19_scratch6.sem) 0 ∗ semVal (thr d L, SemLoc.dma cc19_scratch7.sem) 0 ∗ R)
def runPost (R : sProp 𝕄) : sProp 𝕄 :=
    iprop(bigSep (Finset.range 18) (xP d L fx) ∗ bigSep (Finset.range 18) (oQ d L fx)
            ∗ (∃ g, (a4).view.loc (thr d L) ↦{fullShare} g) ∗ (∃ g, (a5).view.loc (thr d L) ↦{fullShare} g)
            ∗ (∃ g, (a6).view.loc (thr d L) ↦{fullShare} g) ∗ (∃ g, (a7).view.loc (thr d L) ↦{fullShare} g)
            ∗ semVal (thr d L, SemLoc.dma cc19_scratch4.sem) 0 ∗ semVal (thr d L, SemLoc.dma cc19_scratch5.sem) 0
            ∗ semVal (thr d L, SemLoc.dma cc19_scratch6.sem) 0 ∗ semVal (thr d L, SemLoc.dma cc19_scratch7.sem) 0
            ∗ (∃ W', ⌜∀ p ∈ W', p ∈ W ∨ p.2 = none⌝ ∗ owes (thr d L) O W') ∗ R)

set_option maxHeartbeats 16000000 in
/-- The task's run: from its pieces of the argument row and of the result, the four staging buffers and the four
    semaphores at zero, to the same with every piece of the result holding the row's elements. -/
theorem tile_run (R : sProp 𝕄) :
    runPre d L O W fx R
      ⊢ wp frame (wpE (defs₀ (F := F)) 𝒱₀ (thr d L) none) Set.univ
          (cc19_sc_group L xtW (Memref.isWhole_whole _) oW (Memref.isWhole_whole _) a4 (Memref.isWhole_whole _) a5 (Memref.isWhole_whole _)
            a6 (Memref.isWhole_whole _) a7 (Memref.isWhole_whole _) cc19_scratch4 cc19_scratch5 cc19_scratch6 cc19_scratch7)
          fun _ => runPost d L O W fx R := by
  unfold runPre runPost
  have v0 : valid L 0 := Or.inl (by omega)
  have v1 : valid L 1 := Or.inl (by omega)
  have k19_h7 : k19_cond7 L = 1#1 := cond7_iff L
  iintro ⟨#Hmw, HO, HX, HOut, ⟨%g4, H4⟩, ⟨%g5, H5⟩, ⟨%g6, H6⟩, ⟨%g7, H7⟩, Hs8, Hs9, Hs10, Hs11, HR⟩
  ihave HX := (Entails.of_eq (xRange_split d L fx v0 v1)) $$ HX
  icases HX with ⟨X0, X1, HX⟩
  ihave X0 := (Entails.of_eq (in_congr d L (off_in0 L v0).symm (in_inb L _) (k19_off1_inb L 0) fx)) $$ X0
  ihave X1 := (Entails.of_eq (in_congr d L (off_in1 L v1).symm (in_inb L _) (k19_off1_inb L 1) fx)) $$ X1
  sl_unfold [cc19_sc_group]
  sl_exec
  ihave S8 := (fl_inV d L fx (off_in0 L v0) (k19_off1_inb L 0) v0 a4 cc19_scratch4.sem) $$ [Hs8]
  · iexists _, _
    isplitr
    rotate_left
    · iexact Hs8
    ipureintro; intro y; rfl
  ihave S9 := (fl_inV d L fx (off_in1 L v1) (k19_off1_inb L 1) v1 a5 cc19_scratch5.sem) $$ [Hs9]
  · iexists _, _
    isplitr
    rotate_left
    · iexact Hs9
    ipureintro; intro y; rfl
  sl_for (invV d L O W fx) $$ [HO HX HOut S8 S9 H6 H7 Hs10 Hs11]
  case region =>
    intro (k : Fin k19_t1_loop.trips) acc
    have hk : k.val < 8 := Nat.lt_of_lt_of_eq k.isLt trips1
    unfold invV
    iintro ⟨#Hmw, ⟨%W', %hW', HO⟩, HX, HOut, S8, S10, S9, S11⟩
    by_cases hk1 : 1 ≤ k.val
    · by_cases v3 : valid L (2 * k.val + 3)
      · -- the generic trip: both drains, both pieces worked, both next fetches issued
        have hk6 : k.val ≤ 6 := by unfold valid at v3; omega
        have k19_h1 : k19_cond1 k = 1#1 := (cond1_iff k).mpr (by omega)
        have k19_h2 : k19_cond2 L k = 1#1 := cond2_iff L k
        have k19_h3 : k19_cond3 L k = 1#1 := (cond3_iff L k).mpr (by omega)
        have k19_h4 : k19_cond4 k = 1#1 := (cond4_iff k).mpr (by omega)
        have k19_h5 : k19_cond5 L k = 1#1 := (cond5_iff L k).mpr (by first | (unfold valid big at *; omega) | (unfold big at *; omega) | omega)
        have k19_h6 : k19_cond6 L k = 1#1 := (cond6_iff L k).mpr (by first | (unfold valid big at *; omega) | (unfold big at *; omega) | omega)
        have v0 : valid L (2 * k.val) := by unfold valid big at *; omega
        have v1 : valid L (2 * k.val + 1) := by unfold valid big at *; omega
        have v2 : valid L (2 * k.val + 2) := by unfold valid big at *; omega
        have v3' : valid L (2 * k.val + 3) := by unfold valid big at *; omega
        have hm0 : 2 ≤ 2 * k.val ∧ valid L (2 * k.val - 2) := ⟨by omega, by unfold valid big at *; omega⟩
        have hm1 : 2 ≤ 2 * k.val + 1 ∧ valid L (2 * k.val + 1 - 2) := ⟨by omega, by unfold valid big at *; omega⟩
        ihave S8 := (Entails.of_eq (inSlotV_pos d L fx v0)) $$ S8
        icases S8 with ⟨%g4, %hin4, F8⟩
        ihave S9 := (Entails.of_eq (inSlotV_pos d L fx v1)) $$ S9
        icases S9 with ⟨%g5, %hin5, F9⟩
        ihave S10 := (Entails.of_eq (outSlotV_pos d L fx hm0)) $$ S10
        icases S10 with ⟨%g6, F10, R6⟩
        ihave S11 := (Entails.of_eq (outSlotV_pos d L fx hm1)) $$ S11
        icases S11 with ⟨%g7, F11, R7⟩
        ihave HX := (Entails.of_eq (xSet_out (xP d L fx) k.val hk)) $$ HX
        icases HX with ⟨X2, X3, HX⟩
        ihave X2 := (Entails.of_eq (xP_pos d L fx v2)) $$ X2
        ihave X2 := (Entails.of_eq (in_congr d L (off_6 L k v2).symm (in_inb L _) (k19_off6_inb L k k19_h3) fx)) $$ X2
        ihave X3 := (Entails.of_eq (xP_pos d L fx v3')) $$ X3
        ihave X3 := (Entails.of_eq (in_congr d L (off_11 L k v3').symm (in_inb L _) (k19_off11_inb L k k19_h6) fx)) $$ X3
        ihave HOut := (Entails.of_eq (oSet_out (oMix d L fx k.val) k.val hk)) $$ HOut
        icases HOut with ⟨Y0, Y1, HOut⟩
        ihave Y0 := (Entails.of_eq ((oMix_ge d L fx (t := k.val) (n := 2 * k.val) (by omega)).trans (oP_pos (F := F) d L v0))) $$ Y0
        icases Y0 with ⟨%f0, Y0⟩
        ihave Y0 := (Entails.of_eq (out_congr d L (off_5 L k v0).symm (out_inb L _) (k19_off5_inb L k k19_h2) f0)) $$ Y0
        ihave Y1 := (Entails.of_eq ((oMix_ge d L fx (t := k.val) (n := 2 * k.val + 1) (by omega)).trans (oP_pos (F := F) d L v1))) $$ Y1
        icases Y1 with ⟨%f1, Y1⟩
        ihave Y1 := (Entails.of_eq (out_congr d L (off_10 L k v1).symm (out_inb L _) (k19_off10_inb L k k19_h5) f1)) $$ Y1
        sl_exec
        sl_for (laneV0 d L g4) $$ [F8_dst R6]
        case region =>
          intro (j : Fin k19_t2_loop.trips) _
          unfold laneV0
          iintro ⟨HA, %g, HB, %hl⟩
          sl_exec
          sl_step
          isplitl [HA]; · iexact HA
          iexists _; isplitl [HB]; · iexact HB
          ipureintro; exact lanes_step d L a4 a6 g4 g j _ _ hl
        · unfold laneV0
          isplitl [F8_dst]; · iexact F8_dst
          iexists _; isplitl [R6]; · iexact R6
          ipureintro; exact lanes_zero d L a4 a6 g4 _
        iintro %_ HI
        unfold laneV0
        icases HI with ⟨H4, %g6', H6, %hl6⟩
        have hl6 : Lanes d L a4 a6 g4 g6' 200 := Eq.mp (congrArg (Lanes d L a4 a6 g4 g6') trips2) hl6
        sl_exec
        sl_for (laneV1 d L g5) $$ [F9_dst R7]
        case region =>
          intro (j : Fin k19_t3_loop.trips) _
          unfold laneV1
          iintro ⟨HA, %g, HB, %hl⟩
          sl_exec
          sl_step
          isplitl [HA]; · iexact HA
          iexists _; isplitl [HB]; · iexact HB
          ipureintro; exact lanes_step' d L a5 a7 g5 g j _ _ hl
        · unfold laneV1
          isplitl [F9_dst]; · iexact F9_dst
          iexists _; isplitl [R7]; · iexact R7
          ipureintro; exact lanes_zero d L a5 a7 g5 _
        iintro %_ HI
        unfold laneV1
        icases HI with ⟨H5, %g7', H7, %hl7⟩
        have hl7 : Lanes d L a5 a7 g5 g7' 200 := Eq.mp (congrArg (Lanes d L a5 a7 g5 g7') trips3) hl7
        sl_exec
        sl_step
        isplitr; · iexact Hmw
        isplitl [HO]
        · iexists _; isplitr
          rotate_left
          · iexact HO
          ipureintro; intro p hp
          rcases Finset.mem_insert.mp hp with rfl | hp
          · exact .inr rfl
          rcases Finset.mem_insert.mp hp with rfl | hp
          · exact .inr rfl
          rcases Finset.mem_insert.mp hp with rfl | hp
          · exact .inr rfl
          rcases Finset.mem_insert.mp hp with rfl | hp
          · exact .inr rfl
          exact hW' p hp
        isplitl [HX F8_src F9_src]
        · iapply (Entails.of_eq (xSet_in (xP d L fx) k.val hk).symm)
          isplitl [F8_src]; · iapply (Entails.of_eq (xP_pos d L fx v0).symm); iexact F8_src
          isplitl [F9_src]; · iapply (Entails.of_eq (xP_pos d L fx v1).symm); iexact F9_src
          iexact HX
        isplitl [HOut F10_dst F11_dst]
        · iapply (Entails.of_eq (oSet_in (oMix d L fx (k.val + 1)) k.val hk (by omega)).symm)
          isplitl [F10_dst]; · iapply (Entails.of_eq ((oMix_lt d L fx (t := k.val + 1) (n := 2 * k.val - 2) (by omega)).trans (oQ_pos d L fx hm0.2)).symm); iexact F10_dst
          isplitl [F11_dst]
          · iapply (Entails.of_eq ((oMix_lt d L fx (t := k.val + 1) (n := 2 * k.val - 1) (by omega)).trans (oQ_pos d L fx (n := 2 * k.val - 1) (by have := hm1.2; rwa [show 2 * k.val + 1 - 2 = 2 * k.val - 1 by omega] at this))).symm)
            iapply (Entails.of_eq (congrArg (oqPiece d L fx) (show 2 * k.val + 1 - 2 = 2 * k.val - 1 by omega))); iexact F11_dst
          iapply (Entails.of_eq (oMix_core d L fx k.val)); iexact HOut
        isplitl [F8]
        · iapply (Entails.of_eq (congrArg (inSlotV d L fx a4 cc19_scratch4.sem) (show 2 * k.val + 2 = 2 * (k.val + 1) by ring)))
          iapply (fl_inV d L fx (off_6 L k v2) (k19_off6_inb L k k19_h3) v2 a4 cc19_scratch4.sem); iexists _, _
          isplitr
          rotate_left
          · iexact F8
          ipureintro; intro y; rfl
        isplitl [F10 H6]
        · iapply (Entails.of_eq (congrArg (outSlotV d L fx a6 cc19_scratch6.sem) (show 2 * k.val + 2 = 2 * (k.val + 1) by ring)))
          iapply (fl_outV d L fx (off_5 L k v0) (k19_off5_inb L k k19_h2) v0 a4 a6 cc19_scratch6.sem f0 g4 g6' hl6 hin4); iexists _
          isplitr
          rotate_left
          · isplitl [F10]; · iexact F10
            iexact H6
          ipureintro; intro y; rfl
        isplitl [F9]
        · iapply (Entails.of_eq (congrArg (inSlotV d L fx a5 cc19_scratch5.sem) (show 2 * k.val + 3 = 2 * (k.val + 1) + 1 by ring)))
          iapply (fl_inV d L fx (off_11 L k v3') (k19_off11_inb L k k19_h6) v3' a5 cc19_scratch5.sem); iexists _, _
          isplitr
          rotate_left
          · iexact F9
          ipureintro; intro y; rfl
        · iapply (Entails.of_eq (congrArg (outSlotV d L fx a7 cc19_scratch7.sem) (show 2 * k.val + 1 + 2 = 2 * (k.val + 1) + 1 by ring)))
          iapply (fl_outV d L fx (off_10 L k v1) (k19_off10_inb L k k19_h5) v1 a5 a7 cc19_scratch7.sem f1 g5 g7' hl7 hin5); iexists _
          isplitr
          rotate_left
          · isplitl [F11]; · iexact F11
            iexact H7
          ipureintro; intro y; rfl
      · by_cases h6 : k.val = 6
        · have hb : ¬ big L := fun hb => v3 (Or.inr ⟨by omega, hb⟩)
          -- trip 6 of a tile with fifteen pieces: no sixteenth piece to fetch
          have k19_h1 : k19_cond1 k = 1#1 := (cond1_iff k).mpr (by omega)
          have k19_h2 : k19_cond2 L k = 1#1 := cond2_iff L k
          have k19_h3 : k19_cond3 L k = 1#1 := (cond3_iff L k).mpr (by omega)
          have k19_h4 : k19_cond4 k = 1#1 := (cond4_iff k).mpr (by omega)
          have k19_h5 : k19_cond5 L k = 1#1 := (cond5_iff L k).mpr (by first | (unfold valid big at *; omega) | (unfold big at *; omega) | omega)
          have k19_h6 : ¬ k19_cond6 L k = 1#1 := fun h => absurd ((cond6_iff L k).mp h) (by first | (unfold valid big at *; omega) | (unfold big at *; omega) | omega)
          have v0 : valid L (2 * k.val) := by unfold valid big at *; omega
          have v1 : valid L (2 * k.val + 1) := by unfold valid big at *; omega
          have v2 : valid L (2 * k.val + 2) := by unfold valid big at *; omega
          have v3' : ¬ valid L (2 * k.val + 3) := by unfold valid big at *; omega
          have hm0 : 2 ≤ 2 * k.val ∧ valid L (2 * k.val - 2) := ⟨by omega, by unfold valid big at *; omega⟩
          have hm1 : 2 ≤ 2 * k.val + 1 ∧ valid L (2 * k.val + 1 - 2) := ⟨by omega, by unfold valid big at *; omega⟩
          ihave S8 := (Entails.of_eq (inSlotV_pos d L fx v0)) $$ S8
          icases S8 with ⟨%g4, %hin4, F8⟩
          ihave S9 := (Entails.of_eq (inSlotV_pos d L fx v1)) $$ S9
          icases S9 with ⟨%g5, %hin5, F9⟩
          ihave S10 := (Entails.of_eq (outSlotV_pos d L fx hm0)) $$ S10
          icases S10 with ⟨%g6, F10, R6⟩
          ihave S11 := (Entails.of_eq (outSlotV_pos d L fx hm1)) $$ S11
          icases S11 with ⟨%g7, F11, R7⟩
          ihave HX := (Entails.of_eq (xSet_out (xP d L fx) k.val hk)) $$ HX
          icases HX with ⟨X2, -, HX⟩
          ihave X2 := (Entails.of_eq (xP_pos d L fx v2)) $$ X2
          ihave X2 := (Entails.of_eq (in_congr d L (off_6 L k v2).symm (in_inb L _) (k19_off6_inb L k k19_h3) fx)) $$ X2
          ihave HOut := (Entails.of_eq (oSet_out (oMix d L fx k.val) k.val hk)) $$ HOut
          icases HOut with ⟨Y0, Y1, HOut⟩
          ihave Y0 := (Entails.of_eq ((oMix_ge d L fx (t := k.val) (n := 2 * k.val) (by omega)).trans (oP_pos (F := F) d L v0))) $$ Y0
          icases Y0 with ⟨%f0, Y0⟩
          ihave Y0 := (Entails.of_eq (out_congr d L (off_5 L k v0).symm (out_inb L _) (k19_off5_inb L k k19_h2) f0)) $$ Y0
          ihave Y1 := (Entails.of_eq ((oMix_ge d L fx (t := k.val) (n := 2 * k.val + 1) (by omega)).trans (oP_pos (F := F) d L v1))) $$ Y1
          icases Y1 with ⟨%f1, Y1⟩
          ihave Y1 := (Entails.of_eq (out_congr d L (off_10 L k v1).symm (out_inb L _) (k19_off10_inb L k k19_h5) f1)) $$ Y1
          sl_exec
          sl_for (laneV0 d L g4) $$ [F8_dst R6]
          case region =>
            intro (j : Fin k19_t2_loop.trips) _
            unfold laneV0
            iintro ⟨HA, %g, HB, %hl⟩
            sl_exec
            sl_step
            isplitl [HA]; · iexact HA
            iexists _; isplitl [HB]; · iexact HB
            ipureintro; exact lanes_step d L a4 a6 g4 g j _ _ hl
          · unfold laneV0
            isplitl [F8_dst]; · iexact F8_dst
            iexists _; isplitl [R6]; · iexact R6
            ipureintro; exact lanes_zero d L a4 a6 g4 _
          iintro %_ HI
          unfold laneV0
          icases HI with ⟨H4, %g6', H6, %hl6⟩
          have hl6 : Lanes d L a4 a6 g4 g6' 200 := Eq.mp (congrArg (Lanes d L a4 a6 g4 g6') trips2) hl6
          sl_exec
          sl_for (laneV1 d L g5) $$ [F9_dst R7]
          case region =>
            intro (j : Fin k19_t3_loop.trips) _
            unfold laneV1
            iintro ⟨HA, %g, HB, %hl⟩
            sl_exec
            sl_step
            isplitl [HA]; · iexact HA
            iexists _; isplitl [HB]; · iexact HB
            ipureintro; exact lanes_step' d L a5 a7 g5 g j _ _ hl
          · unfold laneV1
            isplitl [F9_dst]; · iexact F9_dst
            iexists _; isplitl [R7]; · iexact R7
            ipureintro; exact lanes_zero d L a5 a7 g5 _
          iintro %_ HI
          unfold laneV1
          icases HI with ⟨H5, %g7', H7, %hl7⟩
          have hl7 : Lanes d L a5 a7 g5 g7' 200 := Eq.mp (congrArg (Lanes d L a5 a7 g5 g7') trips3) hl7
          sl_exec
          sl_step
          isplitr; · iexact Hmw
          isplitl [HO]
          · iexists _; isplitr
            rotate_left
            · iexact HO
            ipureintro; intro p hp
            rcases Finset.mem_insert.mp hp with rfl | hp
            · exact .inr rfl
            rcases Finset.mem_insert.mp hp with rfl | hp
            · exact .inr rfl
            rcases Finset.mem_insert.mp hp with rfl | hp
            · exact .inr rfl
            rcases Finset.mem_insert.mp hp with rfl | hp
            · exact .inr rfl
            exact hW' p hp
          isplitl [HX F8_src F9_src]
          · iapply (Entails.of_eq (xSet_in (xP d L fx) k.val hk).symm)
            isplitl [F8_src]; · iapply (Entails.of_eq (xP_pos d L fx v0).symm); iexact F8_src
            isplitl [F9_src]; · iapply (Entails.of_eq (xP_pos d L fx v1).symm); iexact F9_src
            iexact HX
          isplitl [HOut F10_dst F11_dst]
          · iapply (Entails.of_eq (oSet_in (oMix d L fx (k.val + 1)) k.val hk (by omega)).symm)
            isplitl [F10_dst]; · iapply (Entails.of_eq ((oMix_lt d L fx (t := k.val + 1) (n := 2 * k.val - 2) (by omega)).trans (oQ_pos d L fx hm0.2)).symm); iexact F10_dst
            isplitl [F11_dst]
            · iapply (Entails.of_eq ((oMix_lt d L fx (t := k.val + 1) (n := 2 * k.val - 1) (by omega)).trans (oQ_pos d L fx (n := 2 * k.val - 1) (by have := hm1.2; rwa [show 2 * k.val + 1 - 2 = 2 * k.val - 1 by omega] at this))).symm)
              iapply (Entails.of_eq (congrArg (oqPiece d L fx) (show 2 * k.val + 1 - 2 = 2 * k.val - 1 by omega))); iexact F11_dst
            iapply (Entails.of_eq (oMix_core d L fx k.val)); iexact HOut
          isplitl [F8]
          · iapply (Entails.of_eq (congrArg (inSlotV d L fx a4 cc19_scratch4.sem) (show 2 * k.val + 2 = 2 * (k.val + 1) by ring)))
            iapply (fl_inV d L fx (off_6 L k v2) (k19_off6_inb L k k19_h3) v2 a4 cc19_scratch4.sem); iexists _, _
            isplitr
            rotate_left
            · iexact F8
            ipureintro; intro y; rfl
          isplitl [F10 H6]
          · iapply (Entails.of_eq (congrArg (outSlotV d L fx a6 cc19_scratch6.sem) (show 2 * k.val + 2 = 2 * (k.val + 1) by ring)))
            iapply (fl_outV d L fx (off_5 L k v0) (k19_off5_inb L k k19_h2) v0 a4 a6 cc19_scratch6.sem f0 g4 g6' hl6 hin4); iexists _
            isplitr
            rotate_left
            · isplitl [F10]; · iexact F10
              iexact H6
            ipureintro; intro y; rfl
          isplitl [H5 F9]
          · iapply (Entails.of_eq (congrArg (inSlotV d L fx a5 cc19_scratch5.sem) (show 2 * k.val + 3 = 2 * (k.val + 1) + 1 by ring)))
            iapply (Entails.of_eq (inSlotV_neg d L fx v3').symm)
            isplitl [H5]; · iexists _; iexact H5
            iexact F9
          · iapply (Entails.of_eq (congrArg (outSlotV d L fx a7 cc19_scratch7.sem) (show 2 * k.val + 1 + 2 = 2 * (k.val + 1) + 1 by ring)))
            iapply (fl_outV d L fx (off_10 L k v1) (k19_off10_inb L k k19_h5) v1 a5 a7 cc19_scratch7.sem f1 g5 g7' hl7 hin5); iexists _
            isplitr
            rotate_left
            · isplitl [F11]; · iexact F11
              iexact H7
            ipureintro; intro y; rfl
        · have h7 : k.val = 7 := by unfold valid at v3; omega
          by_cases hb : big L
          · -- the last trip of a tile with sixteen pieces: nothing more to fetch
            have k19_h1 : k19_cond1 k = 1#1 := (cond1_iff k).mpr (by omega)
            have k19_h2 : k19_cond2 L k = 1#1 := cond2_iff L k
            have k19_h3 : ¬ k19_cond3 L k = 1#1 := fun h => absurd ((cond3_iff L k).mp h) (by omega)
            have k19_h4 : k19_cond4 k = 1#1 := (cond4_iff k).mpr (by omega)
            have k19_h5 : k19_cond5 L k = 1#1 := (cond5_iff L k).mpr (by first | (unfold valid big at *; omega) | (unfold big at *; omega) | omega)
            have k19_h6 : ¬ k19_cond6 L k = 1#1 := fun h => absurd ((cond6_iff L k).mp h) (by first | (unfold valid big at *; omega) | (unfold big at *; omega) | omega)
            have v0 : valid L (2 * k.val) := by unfold valid big at *; omega
            have v1 : valid L (2 * k.val + 1) := by unfold valid big at *; omega
            have v2 : ¬ valid L (2 * k.val + 2) := by unfold valid big at *; omega
            have v3' : ¬ valid L (2 * k.val + 3) := by unfold valid big at *; omega
            have hm0 : 2 ≤ 2 * k.val ∧ valid L (2 * k.val - 2) := ⟨by omega, by unfold valid big at *; omega⟩
            have hm1 : 2 ≤ 2 * k.val + 1 ∧ valid L (2 * k.val + 1 - 2) := ⟨by omega, by unfold valid big at *; omega⟩
            ihave S8 := (Entails.of_eq (inSlotV_pos d L fx v0)) $$ S8
            icases S8 with ⟨%g4, %hin4, F8⟩
            ihave S9 := (Entails.of_eq (inSlotV_pos d L fx v1)) $$ S9
            icases S9 with ⟨%g5, %hin5, F9⟩
            ihave S10 := (Entails.of_eq (outSlotV_pos d L fx hm0)) $$ S10
            icases S10 with ⟨%g6, F10, R6⟩
            ihave S11 := (Entails.of_eq (outSlotV_pos d L fx hm1)) $$ S11
            icases S11 with ⟨%g7, F11, R7⟩
            ihave HX := (Entails.of_eq (xSet_out (xP d L fx) k.val hk)) $$ HX
            icases HX with ⟨-, -, HX⟩
            ihave HOut := (Entails.of_eq (oSet_out (oMix d L fx k.val) k.val hk)) $$ HOut
            icases HOut with ⟨Y0, Y1, HOut⟩
            ihave Y0 := (Entails.of_eq ((oMix_ge d L fx (t := k.val) (n := 2 * k.val) (by omega)).trans (oP_pos (F := F) d L v0))) $$ Y0
            icases Y0 with ⟨%f0, Y0⟩
            ihave Y0 := (Entails.of_eq (out_congr d L (off_5 L k v0).symm (out_inb L _) (k19_off5_inb L k k19_h2) f0)) $$ Y0
            ihave Y1 := (Entails.of_eq ((oMix_ge d L fx (t := k.val) (n := 2 * k.val + 1) (by omega)).trans (oP_pos (F := F) d L v1))) $$ Y1
            icases Y1 with ⟨%f1, Y1⟩
            ihave Y1 := (Entails.of_eq (out_congr d L (off_10 L k v1).symm (out_inb L _) (k19_off10_inb L k k19_h5) f1)) $$ Y1
            sl_exec
            sl_for (laneV0 d L g4) $$ [F8_dst R6]
            case region =>
              intro (j : Fin k19_t2_loop.trips) _
              unfold laneV0
              iintro ⟨HA, %g, HB, %hl⟩
              sl_exec
              sl_step
              isplitl [HA]; · iexact HA
              iexists _; isplitl [HB]; · iexact HB
              ipureintro; exact lanes_step d L a4 a6 g4 g j _ _ hl
            · unfold laneV0
              isplitl [F8_dst]; · iexact F8_dst
              iexists _; isplitl [R6]; · iexact R6
              ipureintro; exact lanes_zero d L a4 a6 g4 _
            iintro %_ HI
            unfold laneV0
            icases HI with ⟨H4, %g6', H6, %hl6⟩
            have hl6 : Lanes d L a4 a6 g4 g6' 200 := Eq.mp (congrArg (Lanes d L a4 a6 g4 g6') trips2) hl6
            sl_exec
            sl_for (laneV1 d L g5) $$ [F9_dst R7]
            case region =>
              intro (j : Fin k19_t3_loop.trips) _
              unfold laneV1
              iintro ⟨HA, %g, HB, %hl⟩
              sl_exec
              sl_step
              isplitl [HA]; · iexact HA
              iexists _; isplitl [HB]; · iexact HB
              ipureintro; exact lanes_step' d L a5 a7 g5 g j _ _ hl
            · unfold laneV1
              isplitl [F9_dst]; · iexact F9_dst
              iexists _; isplitl [R7]; · iexact R7
              ipureintro; exact lanes_zero d L a5 a7 g5 _
            iintro %_ HI
            unfold laneV1
            icases HI with ⟨H5, %g7', H7, %hl7⟩
            have hl7 : Lanes d L a5 a7 g5 g7' 200 := Eq.mp (congrArg (Lanes d L a5 a7 g5 g7') trips3) hl7
            sl_exec
            sl_step
            isplitr; · iexact Hmw
            isplitl [HO]
            · iexists _; isplitr
              rotate_left
              · iexact HO
              ipureintro; intro p hp
              rcases Finset.mem_insert.mp hp with rfl | hp
              · exact .inr rfl
              rcases Finset.mem_insert.mp hp with rfl | hp
              · exact .inr rfl
              rcases Finset.mem_insert.mp hp with rfl | hp
              · exact .inr rfl
              rcases Finset.mem_insert.mp hp with rfl | hp
              · exact .inr rfl
              exact hW' p hp
            isplitl [HX F8_src F9_src]
            · iapply (Entails.of_eq (xSet_in (xP d L fx) k.val hk).symm)
              isplitl [F8_src]; · iapply (Entails.of_eq (xP_pos d L fx v0).symm); iexact F8_src
              isplitl [F9_src]; · iapply (Entails.of_eq (xP_pos d L fx v1).symm); iexact F9_src
              iexact HX
            isplitl [HOut F10_dst F11_dst]
            · iapply (Entails.of_eq (oSet_in (oMix d L fx (k.val + 1)) k.val hk (by omega)).symm)
              isplitl [F10_dst]; · iapply (Entails.of_eq ((oMix_lt d L fx (t := k.val + 1) (n := 2 * k.val - 2) (by omega)).trans (oQ_pos d L fx hm0.2)).symm); iexact F10_dst
              isplitl [F11_dst]
              · iapply (Entails.of_eq ((oMix_lt d L fx (t := k.val + 1) (n := 2 * k.val - 1) (by omega)).trans (oQ_pos d L fx (n := 2 * k.val - 1) (by have := hm1.2; rwa [show 2 * k.val + 1 - 2 = 2 * k.val - 1 by omega] at this))).symm)
                iapply (Entails.of_eq (congrArg (oqPiece d L fx) (show 2 * k.val + 1 - 2 = 2 * k.val - 1 by omega))); iexact F11_dst
              iapply (Entails.of_eq (oMix_core d L fx k.val)); iexact HOut
            isplitl [H4 F8]
            · iapply (Entails.of_eq (congrArg (inSlotV d L fx a4 cc19_scratch4.sem) (show 2 * k.val + 2 = 2 * (k.val + 1) by ring)))
              iapply (Entails.of_eq (inSlotV_neg d L fx v2).symm)
              isplitl [H4]; · iexists _; iexact H4
              iexact F8
            isplitl [F10 H6]
            · iapply (Entails.of_eq (congrArg (outSlotV d L fx a6 cc19_scratch6.sem) (show 2 * k.val + 2 = 2 * (k.val + 1) by ring)))
              iapply (fl_outV d L fx (off_5 L k v0) (k19_off5_inb L k k19_h2) v0 a4 a6 cc19_scratch6.sem f0 g4 g6' hl6 hin4); iexists _
              isplitr
              rotate_left
              · isplitl [F10]; · iexact F10
                iexact H6
              ipureintro; intro y; rfl
            isplitl [H5 F9]
            · iapply (Entails.of_eq (congrArg (inSlotV d L fx a5 cc19_scratch5.sem) (show 2 * k.val + 3 = 2 * (k.val + 1) + 1 by ring)))
              iapply (Entails.of_eq (inSlotV_neg d L fx v3').symm)
              isplitl [H5]; · iexists _; iexact H5
              iexact F9
            · iapply (Entails.of_eq (congrArg (outSlotV d L fx a7 cc19_scratch7.sem) (show 2 * k.val + 1 + 2 = 2 * (k.val + 1) + 1 by ring)))
              iapply (fl_outV d L fx (off_10 L k v1) (k19_off10_inb L k k19_h5) v1 a5 a7 cc19_scratch7.sem f1 g5 g7' hl7 hin5); iexists _
              isplitr
              rotate_left
              · isplitl [F11]; · iexact F11
                iexact H7
              ipureintro; intro y; rfl
          · -- the last trip of a tile with fifteen pieces: the second slot only drains
            have k19_h1 : k19_cond1 k = 1#1 := (cond1_iff k).mpr (by omega)
            have k19_h2 : k19_cond2 L k = 1#1 := cond2_iff L k
            have k19_h3 : ¬ k19_cond3 L k = 1#1 := fun h => absurd ((cond3_iff L k).mp h) (by omega)
            have k19_h4 : k19_cond4 k = 1#1 := (cond4_iff k).mpr (by omega)
            have k19_h5 : ¬ k19_cond5 L k = 1#1 := fun h => absurd ((cond5_iff L k).mp h) (by first | (unfold valid big at *; omega) | (unfold big at *; omega) | omega)
            have k19_h6 : ¬ k19_cond6 L k = 1#1 := fun h => absurd ((cond6_iff L k).mp h) (by first | (unfold valid big at *; omega) | (unfold big at *; omega) | omega)
            have v0 : valid L (2 * k.val) := by unfold valid big at *; omega
            have v1 : ¬ valid L (2 * k.val + 1) := by unfold valid big at *; omega
            have v2 : ¬ valid L (2 * k.val + 2) := by unfold valid big at *; omega
            have v3' : ¬ valid L (2 * k.val + 3) := by unfold valid big at *; omega
            have hm0 : 2 ≤ 2 * k.val ∧ valid L (2 * k.val - 2) := ⟨by omega, by unfold valid big at *; omega⟩
            have hm1 : 2 ≤ 2 * k.val + 1 ∧ valid L (2 * k.val + 1 - 2) := ⟨by omega, by unfold valid big at *; omega⟩
            ihave S8 := (Entails.of_eq (inSlotV_pos d L fx v0)) $$ S8
            icases S8 with ⟨%g4, %hin4, F8⟩
            ihave S9 := (Entails.of_eq (inSlotV_neg d L fx v1)) $$ S9
            icases S9 with ⟨⟨%g5, H5⟩, F9⟩
            ihave S10 := (Entails.of_eq (outSlotV_pos d L fx hm0)) $$ S10
            icases S10 with ⟨%g6, F10, R6⟩
            ihave S11 := (Entails.of_eq (outSlotV_pos d L fx hm1)) $$ S11
            icases S11 with ⟨%g7, F11, R7⟩
            ihave HX := (Entails.of_eq (xSet_out (xP d L fx) k.val hk)) $$ HX
            icases HX with ⟨-, -, HX⟩
            ihave HOut := (Entails.of_eq (oSet_out (oMix d L fx k.val) k.val hk)) $$ HOut
            icases HOut with ⟨Y0, -, HOut⟩
            ihave Y0 := (Entails.of_eq ((oMix_ge d L fx (t := k.val) (n := 2 * k.val) (by omega)).trans (oP_pos (F := F) d L v0))) $$ Y0
            icases Y0 with ⟨%f0, Y0⟩
            ihave Y0 := (Entails.of_eq (out_congr d L (off_5 L k v0).symm (out_inb L _) (k19_off5_inb L k k19_h2) f0)) $$ Y0
            sl_exec
            sl_for (laneV0 d L g4) $$ [F8_dst R6]
            case region =>
              intro (j : Fin k19_t2_loop.trips) _
              unfold laneV0
              iintro ⟨HA, %g, HB, %hl⟩
              sl_exec
              sl_step
              isplitl [HA]; · iexact HA
              iexists _; isplitl [HB]; · iexact HB
              ipureintro; exact lanes_step d L a4 a6 g4 g j _ _ hl
            · unfold laneV0
              isplitl [F8_dst]; · iexact F8_dst
              iexists _; isplitl [R6]; · iexact R6
              ipureintro; exact lanes_zero d L a4 a6 g4 _
            iintro %_ HI
            unfold laneV0
            icases HI with ⟨H4, %g6', H6, %hl6⟩
            have hl6 : Lanes d L a4 a6 g4 g6' 200 := Eq.mp (congrArg (Lanes d L a4 a6 g4 g6') trips2) hl6
            sl_exec
            sl_step
            isplitr; · iexact Hmw
            isplitl [HO]
            · iexists _; isplitr
              rotate_left
              · iexact HO
              ipureintro; intro p hp
              rcases Finset.mem_insert.mp hp with rfl | hp
              · exact .inr rfl
              rcases Finset.mem_insert.mp hp with rfl | hp
              · exact .inr rfl
              rcases Finset.mem_insert.mp hp with rfl | hp
              · exact .inr rfl
              exact hW' p hp
            isplitl [HX F8_src]
            · iapply (Entails.of_eq (xSet_in (xP d L fx) k.val hk).symm)
              isplitl [F8_src]; · iapply (Entails.of_eq (xP_pos d L fx v0).symm); iexact F8_src
              isplitr; · iapply (Entails.of_eq (xP_neg d L fx v1).symm); iempintro
              iexact HX
            isplitl [HOut F10_dst F11_dst]
            · iapply (Entails.of_eq (oSet_in (oMix d L fx (k.val + 1)) k.val hk (by omega)).symm)
              isplitl [F10_dst]; · iapply (Entails.of_eq ((oMix_lt d L fx (t := k.val + 1) (n := 2 * k.val - 2) (by omega)).trans (oQ_pos d L fx hm0.2)).symm); iexact F10_dst
              isplitl [F11_dst]
              · iapply (Entails.of_eq ((oMix_lt d L fx (t := k.val + 1) (n := 2 * k.val - 1) (by omega)).trans (oQ_pos d L fx (n := 2 * k.val - 1) (by have := hm1.2; rwa [show 2 * k.val + 1 - 2 = 2 * k.val - 1 by omega] at this))).symm)
                iapply (Entails.of_eq (congrArg (oqPiece d L fx) (show 2 * k.val + 1 - 2 = 2 * k.val - 1 by omega))); iexact F11_dst
              iapply (Entails.of_eq (oMix_core d L fx k.val)); iexact HOut
            isplitl [H4 F8]
            · iapply (Entails.of_eq (congrArg (inSlotV d L fx a4 cc19_scratch4.sem) (show 2 * k.val + 2 = 2 * (k.val + 1) by ring)))
              iapply (Entails.of_eq (inSlotV_neg d L fx v2).symm)
              isplitl [H4]; · iexists _; iexact H4
              iexact F8
            isplitl [F10 H6]
            · iapply (Entails.of_eq (congrArg (outSlotV d L fx a6 cc19_scratch6.sem) (show 2 * k.val + 2 = 2 * (k.val + 1) by ring)))
              iapply (fl_outV d L fx (off_5 L k v0) (k19_off5_inb L k k19_h2) v0 a4 a6 cc19_scratch6.sem f0 g4 g6' hl6 hin4); iexists _
              isplitr
              rotate_left
              · isplitl [F10]; · iexact F10
                iexact H6
              ipureintro; intro y; rfl
            isplitl [H5 F9]
            · iapply (Entails.of_eq (congrArg (inSlotV d L fx a5 cc19_scratch5.sem) (show 2 * k.val + 3 = 2 * (k.val + 1) + 1 by ring)))
              iapply (Entails.of_eq (inSlotV_neg d L fx v3').symm)
              isplitl [H5]; · iexists _; iexact H5
              iexact F9
            · iapply (Entails.of_eq (outSlotV_neg d L fx (m := 2 * (k.val + 1) + 1) (by intro h; apply v1; have := h.2; rwa [show 2 * (k.val + 1) + 1 - 2 = 2 * k.val + 1 by omega] at this)).symm)
              isplitl [R7]; · iexists _; iexact R7
              iexact F11
    · have hk0 : k.val = 0 := by omega
      -- the first trip: nothing to drain
      have k19_h1 : ¬ k19_cond1 k = 1#1 := fun h => absurd ((cond1_iff k).mp h) (by omega)
      have k19_h2 : k19_cond2 L k = 1#1 := cond2_iff L k
      have k19_h3 : k19_cond3 L k = 1#1 := (cond3_iff L k).mpr (by omega)
      have k19_h4 : ¬ k19_cond4 k = 1#1 := fun h => absurd ((cond4_iff k).mp h) (by omega)
      have k19_h5 : k19_cond5 L k = 1#1 := (cond5_iff L k).mpr (by first | (unfold valid big at *; omega) | (unfold big at *; omega) | omega)
      have k19_h6 : k19_cond6 L k = 1#1 := (cond6_iff L k).mpr (by first | (unfold valid big at *; omega) | (unfold big at *; omega) | omega)
      have v0 : valid L (2 * k.val) := by unfold valid big at *; omega
      have v1 : valid L (2 * k.val + 1) := by unfold valid big at *; omega
      have v2 : valid L (2 * k.val + 2) := by unfold valid big at *; omega
      have v3' : valid L (2 * k.val + 3) := by unfold valid big at *; omega
      have hm0 : ¬ (2 ≤ 2 * k.val ∧ valid L (2 * k.val - 2)) := by omega
      have hm1 : ¬ (2 ≤ 2 * k.val + 1 ∧ valid L (2 * k.val + 1 - 2)) := by omega
      ihave S8 := (Entails.of_eq (inSlotV_pos d L fx v0)) $$ S8
      icases S8 with ⟨%g4, %hin4, F8⟩
      ihave S9 := (Entails.of_eq (inSlotV_pos d L fx v1)) $$ S9
      icases S9 with ⟨%g5, %hin5, F9⟩
      ihave S10 := (Entails.of_eq (outSlotV_neg d L fx hm0)) $$ S10
      icases S10 with ⟨⟨%g6, R6⟩, F10⟩
      ihave S11 := (Entails.of_eq (outSlotV_neg d L fx hm1)) $$ S11
      icases S11 with ⟨⟨%g7, R7⟩, F11⟩
      ihave HX := (Entails.of_eq (xSet_out (xP d L fx) k.val hk)) $$ HX
      icases HX with ⟨X2, X3, HX⟩
      ihave X2 := (Entails.of_eq (xP_pos d L fx v2)) $$ X2
      ihave X2 := (Entails.of_eq (in_congr d L (off_6 L k v2).symm (in_inb L _) (k19_off6_inb L k k19_h3) fx)) $$ X2
      ihave X3 := (Entails.of_eq (xP_pos d L fx v3')) $$ X3
      ihave X3 := (Entails.of_eq (in_congr d L (off_11 L k v3').symm (in_inb L _) (k19_off11_inb L k k19_h6) fx)) $$ X3
      ihave HOut := (Entails.of_eq (oSet_out (oMix d L fx k.val) k.val hk)) $$ HOut
      icases HOut with ⟨Y0, Y1, HOut⟩
      ihave Y0 := (Entails.of_eq ((oMix_ge d L fx (t := k.val) (n := 2 * k.val) (by omega)).trans (oP_pos (F := F) d L v0))) $$ Y0
      icases Y0 with ⟨%f0, Y0⟩
      ihave Y0 := (Entails.of_eq (out_congr d L (off_5 L k v0).symm (out_inb L _) (k19_off5_inb L k k19_h2) f0)) $$ Y0
      ihave Y1 := (Entails.of_eq ((oMix_ge d L fx (t := k.val) (n := 2 * k.val + 1) (by omega)).trans (oP_pos (F := F) d L v1))) $$ Y1
      icases Y1 with ⟨%f1, Y1⟩
      ihave Y1 := (Entails.of_eq (out_congr d L (off_10 L k v1).symm (out_inb L _) (k19_off10_inb L k k19_h5) f1)) $$ Y1
      sl_exec
      sl_for (laneV0 d L g4) $$ [F8_dst R6]
      case region =>
        intro (j : Fin k19_t2_loop.trips) _
        unfold laneV0
        iintro ⟨HA, %g, HB, %hl⟩
        sl_exec
        sl_step
        isplitl [HA]; · iexact HA
        iexists _; isplitl [HB]; · iexact HB
        ipureintro; exact lanes_step d L a4 a6 g4 g j _ _ hl
      · unfold laneV0
        isplitl [F8_dst]; · iexact F8_dst
        iexists _; isplitl [R6]; · iexact R6
        ipureintro; exact lanes_zero d L a4 a6 g4 _
      iintro %_ HI
      unfold laneV0
      icases HI with ⟨H4, %g6', H6, %hl6⟩
      have hl6 : Lanes d L a4 a6 g4 g6' 200 := Eq.mp (congrArg (Lanes d L a4 a6 g4 g6') trips2) hl6
      sl_exec
      sl_for (laneV1 d L g5) $$ [F9_dst R7]
      case region =>
        intro (j : Fin k19_t3_loop.trips) _
        unfold laneV1
        iintro ⟨HA, %g, HB, %hl⟩
        sl_exec
        sl_step
        isplitl [HA]; · iexact HA
        iexists _; isplitl [HB]; · iexact HB
        ipureintro; exact lanes_step' d L a5 a7 g5 g j _ _ hl
      · unfold laneV1
        isplitl [F9_dst]; · iexact F9_dst
        iexists _; isplitl [R7]; · iexact R7
        ipureintro; exact lanes_zero d L a5 a7 g5 _
      iintro %_ HI
      unfold laneV1
      icases HI with ⟨H5, %g7', H7, %hl7⟩
      have hl7 : Lanes d L a5 a7 g5 g7' 200 := Eq.mp (congrArg (Lanes d L a5 a7 g5 g7') trips3) hl7
      sl_exec
      sl_step
      isplitr; · iexact Hmw
      isplitl [HO]
      · iexists _; isplitr
        rotate_left
        · iexact HO
        ipureintro; intro p hp
        rcases Finset.mem_insert.mp hp with rfl | hp
        · exact .inr rfl
        rcases Finset.mem_insert.mp hp with rfl | hp
        · exact .inr rfl
        exact hW' p hp
      isplitl [HX F8_src F9_src]
      · iapply (Entails.of_eq (xSet_in (xP d L fx) k.val hk).symm)
        isplitl [F8_src]; · iapply (Entails.of_eq (xP_pos d L fx v0).symm); iexact F8_src
        isplitl [F9_src]; · iapply (Entails.of_eq (xP_pos d L fx v1).symm); iexact F9_src
        iexact HX
      isplitl [HOut]
      · iapply (Entails.of_eq (congrArg (fun s => bigSep s (oMix d L fx (k.val + 1))) (show oCore k.val = oSet (k.val + 1) by rw [hk0]; decide)))
        iapply (Entails.of_eq (oMix_core d L fx k.val)); iexact HOut
      isplitl [F8]
      · iapply (Entails.of_eq (congrArg (inSlotV d L fx a4 cc19_scratch4.sem) (show 2 * k.val + 2 = 2 * (k.val + 1) by ring)))
        iapply (fl_inV d L fx (off_6 L k v2) (k19_off6_inb L k k19_h3) v2 a4 cc19_scratch4.sem); iexists _, _
        isplitr
        rotate_left
        · iexact F8
        ipureintro; intro y; rfl
      isplitl [F10 H6]
      · iapply (Entails.of_eq (congrArg (outSlotV d L fx a6 cc19_scratch6.sem) (show 2 * k.val + 2 = 2 * (k.val + 1) by ring)))
        iapply (fl_outV d L fx (off_5 L k v0) (k19_off5_inb L k k19_h2) v0 a4 a6 cc19_scratch6.sem f0 g4 g6' hl6 hin4); iexists _
        isplitr
        rotate_left
        · isplitl [F10]; · iexact F10
          iexact H6
        ipureintro; intro y; rfl
      isplitl [F9]
      · iapply (Entails.of_eq (congrArg (inSlotV d L fx a5 cc19_scratch5.sem) (show 2 * k.val + 3 = 2 * (k.val + 1) + 1 by ring)))
        iapply (fl_inV d L fx (off_11 L k v3') (k19_off11_inb L k k19_h6) v3' a5 cc19_scratch5.sem); iexists _, _
        isplitr
        rotate_left
        · iexact F9
        ipureintro; intro y; rfl
      · iapply (Entails.of_eq (congrArg (outSlotV d L fx a7 cc19_scratch7.sem) (show 2 * k.val + 1 + 2 = 2 * (k.val + 1) + 1 by ring)))
        iapply (fl_outV d L fx (off_10 L k v1) (k19_off10_inb L k k19_h5) v1 a5 a7 cc19_scratch7.sem f1 g5 g7' hl7 hin5); iexists _
        isplitr
        rotate_left
        · isplitl [F11]; · iexact F11
          iexact H7
        ipureintro; intro y; rfl
  · unfold invV
    isplitr; · iexact Hmw
    isplitl [HO]
    · iexists W; isplitr
      · ipureintro; exact fun p hp => .inl hp
      · iexact HO
    isplitl [HX]; · iexact HX
    isplitl [HOut]; · iapply (Entails.of_eq (oMix_zero d L fx).symm); iexact HOut
    isplitl [S8]; · iexact S8
    isplitl [H6 Hs10]
    · rw [outSlotV_neg d L fx (by omega)]; isplitl [H6]; · iexists _; iexact H6
      iexact Hs10
    isplitl [S9]; · iexact S9
    rw [outSlotV_neg d L fx (by omega)]; isplitl [H7]; · iexists _; iexact H7
    iexact Hs11
  iintro %acc' HI
  ihave HI := (Entails.of_eq (congrArg (fun t => invV d L O W fx t acc') trips1)) $$ HI
  unfold invV
  icases HI with ⟨-, ⟨%W', %hW', HO⟩, HX, HOut, S8, S10, S9, S11⟩
  have nv16 : ¬ valid L (2 * 8) := by unfold valid; omega
  have nv17 : ¬ valid L (2 * 8 + 1) := by unfold valid; omega
  have hm14 : 2 ≤ 2 * 8 ∧ valid L (2 * 8 - 2) := ⟨by omega, Or.inl (by omega)⟩
  ihave S8 := (Entails.of_eq (inSlotV_neg d L fx nv16)) $$ S8
  icases S8 with ⟨⟨%g4', H4⟩, Hs8⟩
  ihave S9 := (Entails.of_eq (inSlotV_neg d L fx nv17)) $$ S9
  icases S9 with ⟨⟨%g5', H5⟩, Hs9⟩
  ihave S10 := (Entails.of_eq (outSlotV_pos d L fx hm14)) $$ S10
  icases S10 with ⟨%g6', F10, R6⟩
  by_cases hb : big L
  · have k19_h8 : k19_cond8 L = 1#1 := (cond8_iff L).mpr hb
    have hm15 : 2 ≤ 2 * 8 + 1 ∧ valid L (2 * 8 + 1 - 2) := ⟨by omega, Or.inr ⟨by omega, hb⟩⟩
    ihave S11 := (Entails.of_eq (outSlotV_pos d L fx hm15)) $$ S11
    icases S11 with ⟨%g7', F11, R7⟩
    sl_exec
    sl_step
    isplitl [HX]; · iapply (xRange_end d L fx); iexact HX
    isplitl [HOut F10_dst F11_dst]
    · iapply (Entails.of_eq (oRange_end (oQ d L fx)).symm)
      isplitl [F10_dst]; · iapply (Entails.of_eq (oQ_pos d L fx hm14.2).symm); iexact F10_dst
      isplitl [F11_dst]; · iapply (Entails.of_eq (oQ_pos d L fx hm15.2).symm); iexact F11_dst
      iapply (Entails.of_eq (oMix_end d L fx)); iexact HOut
    isplitl [H4]; · iexists _; iexact H4
    isplitl [H5]; · iexists _; iexact H5
    isplitl [R6]; · iexists _; iexact R6
    isplitl [R7]; · iexists _; iexact R7
    isplitl [Hs8]; · iexact Hs8
    isplitl [Hs9]; · iexact Hs9
    isplitl [F10]; · iexact F10
    isplitl [F11]; · iexact F11
    isplitl [HO]
    · iexists _; isplitr
      rotate_left
      · iexact HO
      ipureintro; intro p hp
      rcases Finset.mem_insert.mp hp with rfl | hp
      · exact .inr rfl
      rcases Finset.mem_insert.mp hp with rfl | hp
      · exact .inr rfl
      exact hW' p hp
    iexact HR
  · have k19_h8 : ¬ k19_cond8 L = 1#1 := fun h => hb ((cond8_iff L).mp h)
    have hm15 : ¬ (2 ≤ 2 * 8 + 1 ∧ valid L (2 * 8 + 1 - 2)) := by intro h; have := h.2; unfold valid at this; omega
    ihave S11 := (Entails.of_eq (outSlotV_neg d L fx hm15)) $$ S11
    icases S11 with ⟨⟨%g7', R7⟩, F11⟩
    sl_exec
    sl_step
    isplitl [HX]; · iapply (xRange_end d L fx); iexact HX
    isplitl [HOut F10_dst]
    · iapply (Entails.of_eq (oRange_end (oQ d L fx)).symm)
      isplitl [F10_dst]; · iapply (Entails.of_eq (oQ_pos d L fx hm14.2).symm); iexact F10_dst
      isplitr; · iapply (Entails.of_eq (oQ_neg d L fx (n := 15) (by unfold valid; omega)).symm); iempintro
      iapply (Entails.of_eq (oMix_end d L fx)); iexact HOut
    isplitl [H4]; · iexists _; iexact H4
    isplitl [H5]; · iexists _; iexact H5
    isplitl [R6]; · iexists _; iexact R6
    isplitl [R7]; · iexists _; iexact R7
    isplitl [Hs8]; · iexact Hs8
    isplitl [Hs9]; · iexact Hs9
    isplitl [F10]; · iexact F10
    isplitl [F11]; · iexact F11
    isplitl [HO]
    · iexists _; isplitr
      rotate_left
      · iexact HO
      ipureintro; intro p hp
      rcases Finset.mem_insert.mp hp with rfl | hp
      · exact .inr rfl
      exact hW' p hp
    iexact HR

/-! The subcore's scoped storage: the four staging buffers and the four semaphores of this call, and the rest. -/

abbrev c8 : GSem nD τ sig := (thr d L, SemLoc.dma cc19_scratch4.sem)
abbrev c9 : GSem nD τ sig := (thr d L, SemLoc.dma cc19_scratch5.sem)
abbrev c10 : GSem nD τ sig := (thr d L, SemLoc.dma cc19_scratch6.sem)
abbrev c11 : GSem nD τ sig := (thr d L, SemLoc.dma cc19_scratch7.sem)

omit [FloatOps F] in
theorem ownSems0_V :
    (ownSems0 (thr d L) : sProp 𝕄)
      = iprop(semVal (c8 d L) 0 ∗ semVal (c9 d L) 0 ∗ semVal (c10 d L) 0 ∗ semVal (c11 d L) 0
          ∗ bigSep (((((ownCells (thr d L)).erase (c8 d L)).erase (c9 d L)).erase (c10 d L)).erase (c11 d L)) fun g => semVal g 0) := by
  unfold SparseCore.Cfg.ownSems0
  rw [SparseCore.bigSep_erase' ((mem_ownCells (g := c8 d L)).mpr ⟨rfl, by
      show (SemLoc.dma cc19_scratch4.sem : SemLoc sig).isScoped .scVector = true; decide⟩),
    SparseCore.bigSep_erase' (Finset.mem_erase.mpr ⟨fun e => absurd (Prod.mk.inj e).2 (by decide), (mem_ownCells (g := c9 d L)).mpr ⟨rfl, by
      show (SemLoc.dma cc19_scratch5.sem : SemLoc sig).isScoped .scVector = true; decide⟩⟩),
    SparseCore.bigSep_erase' (Finset.mem_erase.mpr ⟨fun e => absurd (Prod.mk.inj e).2 (by decide), Finset.mem_erase.mpr ⟨fun e => absurd (Prod.mk.inj e).2 (by decide),
      (mem_ownCells (g := c10 d L)).mpr ⟨rfl, by show (SemLoc.dma cc19_scratch6.sem : SemLoc sig).isScoped .scVector = true; decide⟩⟩⟩),
    SparseCore.bigSep_erase' (Finset.mem_erase.mpr ⟨fun e => absurd (Prod.mk.inj e).2 (by decide), Finset.mem_erase.mpr ⟨fun e => absurd (Prod.mk.inj e).2 (by decide),
      Finset.mem_erase.mpr ⟨fun e => absurd (Prod.mk.inj e).2 (by decide),
      (mem_ownCells (g := c11 d L)).mpr ⟨rfl, by show (SemLoc.dma cc19_scratch7.sem : SemLoc sig).isScoped .scVector = true; decide⟩⟩⟩⟩)]

abbrev pV (L : grid19.Coords) : Proc τ := Proc.scVector (cV L) (jV L)

omit [FloatOps F] in
theorem ownBufs_V :
    (ownBufs (thr d L) : sProp 𝕄)
      = iprop((∃ f, (thr d L).loc cc19_scratch0 ↦{fullShare} f) ∗ (∃ f, (thr d L).loc cc19_scratch1 ↦{fullShare} f)
          ∗ (∃ f, (thr d L).loc cc19_scratch2 ↦{fullShare} f) ∗ (∃ f, (thr d L).loc cc19_scratch3 ↦{fullShare} f)
          ∗ bigSep (((((ownRefs (τ := τ) (pV L)).erase ((pV L).devRef cc19_scratch0)).erase ((pV L).devRef cc19_scratch1)).erase
              ((pV L).devRef cc19_scratch2)).erase ((pV L).devRef cc19_scratch3))
              fun b => iprop(∃ f, ((d, b) : Loc nD τ sig) ↦{fullShare} f)) := by
  unfold SparseCore.Cfg.ownBufs
  refine (SparseCore.bigSep_erase' (SparseCore.Cfg.mem_ownRefs_of_owner (p := pV L) (b := (pV L).devRef cc19_scratch0) rfl)).trans ?_
  rw [SparseCore.bigSep_erase' (Finset.mem_erase.mpr ⟨fun e => absurd (Proc.devRef_injective _ e) (show (cc19_scratch1 : Ref sig .scVector) ≠ cc19_scratch0 by decide),
      SparseCore.Cfg.mem_ownRefs_of_owner (p := pV L) (b := (pV L).devRef cc19_scratch1) rfl⟩),
    SparseCore.bigSep_erase' (Finset.mem_erase.mpr ⟨fun e => absurd (Proc.devRef_injective _ e) (show (cc19_scratch2 : Ref sig .scVector) ≠ cc19_scratch1 by decide),
      Finset.mem_erase.mpr ⟨fun e => absurd (Proc.devRef_injective _ e) (show (cc19_scratch2 : Ref sig .scVector) ≠ cc19_scratch0 by decide),
      SparseCore.Cfg.mem_ownRefs_of_owner (p := pV L) (b := (pV L).devRef cc19_scratch2) rfl⟩⟩),
    SparseCore.bigSep_erase' (Finset.mem_erase.mpr ⟨fun e => absurd (Proc.devRef_injective _ e) (show (cc19_scratch3 : Ref sig .scVector) ≠ cc19_scratch2 by decide),
      Finset.mem_erase.mpr ⟨fun e => absurd (Proc.devRef_injective _ e) (show (cc19_scratch3 : Ref sig .scVector) ≠ cc19_scratch1 by decide),
      Finset.mem_erase.mpr ⟨fun e => absurd (Proc.devRef_injective _ e) (show (cc19_scratch3 : Ref sig .scVector) ≠ cc19_scratch0 by decide),
      SparseCore.Cfg.mem_ownRefs_of_owner (p := pV L) (b := (pV L).devRef cc19_scratch3) rfl⟩⟩⟩)]

/-- The rest of the subcore's scoped storage, which the task does not touch. -/
def restR : sProp 𝕄 :=
  iprop((bigSep (((((ownRefs (τ := τ) (pV L)).erase ((pV L).devRef cc19_scratch0)).erase ((pV L).devRef cc19_scratch1)).erase
              ((pV L).devRef cc19_scratch2)).erase ((pV L).devRef cc19_scratch3))
              fun b => iprop(∃ f, ((d, b) : Loc nD τ sig) ↦{fullShare} f))
      ∗ bigSep (((((ownCells (thr d L)).erase (c8 d L)).erase (c9 d L)).erase (c10 d L)).erase (c11 d L)) fun g => semVal g 0)

theorem body_pre (hO : ∀ g, O g none = 0) :
    iprop(levAts (K (F := F)).L (K (F := F)).lev ∗ emp ∗ goRes d L fx ∗ ownBufs (thr d L) ∗ ownSems0 (thr d L) ∗ owes (thr d L) O W)
      ⊢ runPre d L O W fx (restR (F := F) d L) := by
  rw [ownSems0_V, ownBufs_V]
  unfold goRes runPre restR
  iintro ⟨#Hlv, -, ⟨HX, HOut⟩, ⟨H4, H5, H6, H7, Hbufs⟩, ⟨Hs8, Hs9, Hs10, Hs11, Hsems⟩, HO⟩
  ihave Hmw := ((K (F := F)).mayWaits_none (thr := thr d L) hO) $$ Hlv
  isplitr; · iexact Hmw
  isplitl [HO]; · iexact HO
  isplitl [HX]; · iexact HX
  isplitl [HOut]; · iexact HOut
  isplitl [H4]; · iexact H4
  isplitl [H5]; · iexact H5
  isplitl [H6]; · iexact H6
  isplitl [H7]; · iexact H7
  isplitl [Hs8]; · iexact Hs8
  isplitl [Hs9]; · iexact Hs9
  isplitl [Hs10]; · iexact Hs10
  isplitl [Hs11]; · iexact Hs11
  isplitl [Hbufs]; · iexact Hbufs
  iexact Hsems

theorem body_post :
    runPost d L O W fx (restR (F := F) d L)
      ⊢ iprop(tdRes d L fx ∗ ownBufs (thr d L) ∗ ownSems0 (thr d L) ∗ ∃ W', ⌜∀ p ∈ W', p ∈ W ∨ p.2 = none⌝ ∗ owes (thr d L) O W') := by
  rw [ownSems0_V, ownBufs_V]
  unfold tdRes runPost restR
  iintro ⟨HX, HOut, H4, H5, H6, H7, Hs8, Hs9, Hs10, Hs11, HW, Hbufs, Hsems⟩
  isplitl [HX HOut]
  · isplitl [HX]; · iexact HX
    iexact HOut
  isplitl [H4 H5 H6 H7 Hbufs]
  · isplitl [H4]; · iexact H4
    isplitl [H5]; · iexact H5
    isplitl [H6]; · iexact H6
    isplitl [H7]; · iexact H7
    iexact Hbufs
  isplitl [Hs8 Hs9 Hs10 Hs11 Hsems]
  · isplitl [Hs8]; · iexact Hs8
    isplitl [Hs9]; · iexact Hs9
    isplitl [Hs10]; · iexact Hs10
    isplitl [Hs11]; · iexact Hs11
    iexact Hsems
  iexact HW

/-- The task in the launch theorem's shape: from what the call hands the tile and the subcore's scoped storage to
    what the tile hands back and the storage again. -/
theorem tile_body (hF : (K (F := F)).Facts) (hO : ∀ g, O g none = 0) :
    iprop(levAts (K (F := F)).L (K (F := F)).lev ∗ emp ∗ goRes d L fx ∗ scopedBufs (thr d L) ∗ scopedSems0 (thr d L) ∗ owes (thr d L) O W)
      ⊢ wp frame (wpE (defs₀ (F := F)) 𝒱₀ (thr d L) none) Set.univ
          (cc19_sc_group L xtW (Memref.isWhole_whole _) oW (Memref.isWhole_whole _) a4 (Memref.isWhole_whole _) a5 (Memref.isWhole_whole _)
            a6 (Memref.isWhole_whole _) a7 (Memref.isWhole_whole _) cc19_scratch4 cc19_scratch5 cc19_scratch6 cc19_scratch7)
          fun _ => iprop(tdRes d L fx ∗ scopedBufs (thr d L) ∗ scopedSems0 (thr d L)
            ∗ ∃ W', ⌜∀ p ∈ W', p ∈ W ∨ p.2 = none⌝ ∗ owes (thr d L) O W') := by
  rw [(K (F := F)).scopedBufs_V hF d (cV L) (jV L), SparseCore.Cfg.scopedSems0_V (Val := Elt F) d (cV L) (jV L)]
  exact (body_pre d L O W fx hO).trans ((tile_run d L O W fx (restR (F := F) d L)).trans (wp_mono frame _ _ fun _ => body_post d L O W fx))

end Tile

end Cert.Proof.TileB19

end
-- ==== Proof.TileVal20.lean ====
/-
  What the staging buffers of one vector subcore hold while it copies a piece of 3200 consecutive elements of row 20 of
  the transposed argument into the flat result, read index by index. No program and no ownership here: only the contents.

  A transfer lands the piece in row 0 of an 8 × 3200 staging array (`InRow`: position (0, t) of that row holds element
  (0, pos + t) of the transposed argument, `pos` the piece's first column). A loop of 200 trips copies that row, 16 lanes
  per trip, into the first 3200 elements of a flat staging array of 25600: trip `j` reads the 1 × 16 window at columns
  [16 j, 16 j + 16) of row 0 and writes it, flattened, at elements [16 j, 16 j + 16). After `j` trips the first 16 j
  elements of the flat array are the first 16 j elements of the row (`Lanes`); a trip extends the prefix by 16
  (`lanes_step`: an element below 16 j is outside the window written and keeps its value, an element of the window reads
  the lane written there, which is the row's element at the same column). A second transfer writes the first 3200
  elements of the flat array to the piece of the result at the same `pos`; so every element of that piece of the result
  holds the element of row 20 of the transposed argument at its own position (`out_written`): the composite of the three
  index maps t ↦ (0, pos + t) ↦ (0, t) ↦ t ↦ pos + t is the identity on positions of the row.
-/
import proofs.«206869_g37898791420194_cont_8to1_b_558_20_alg».proof.Proof.TileK20Defs
import proofs.«206869_g37898791420194_cont_8to1_b_558_20_alg».proof.Proof.Spec
import Idealize.ShloMosaic.Lib.WritesUnit
import Idealize.ShloMosaic.Lib.ValueLayout

noncomputable section

namespace Cert.Proof.TileVal20

open Cert.Proof.TileK20 Cert.KernelIdeal Cert.KernelIdeal.Gen
open Idealize.ShloMosaic Idealize.ShloMosaic.ValueIdx

variable {F : FTy → Type} [FloatOps F]
variable (d : Dev nD) (L : grid20.Coords)
variable (fx : Buf (Elt F) ((Memref.whole main_v0_scv : Memref sig .scVector .hbm S22x1600000 .f32).view.loc (thr d L)))

abbrev rowRect : Rect S8x3200 := Rect.unit (s := S8x3200) ![0, 0] S1x3200.size inb_S8x3200_S1x3200_0_0

/-- row 0 of the staging array is piece n of the argument row -/
def InRow (a : Memref sig .scVector .vmem S8x3200 .f32) (ga : Buf (Elt F) (a.view.loc (thr d L))) (n : ℕ) : Prop :=
  ∀ y : S1x3200.Idx, a.view.read (Elt F) ga (rowRect.emb y) = (inM L n).view.read (Elt F) fx y

theorem inRow_fetch (a : Memref sig .scVector .vmem S8x3200 .f32) (gold : Buf (Elt F) (a.view.loc (thr d L)))
    (w : S1x3200.Idx → Elt F .f32) (n : ℕ) (hw : ∀ y, w y = (inM L n).view.read (Elt F) fx y) :
    InRow d L fx a (a.view.writes (Elt F) gold [⟨rowRect, w⟩]) n :=
  fun y => (View.read_writes_cons_emb a.view gold rowRect w [] y).trans (hw y)

def Lanes (a : Memref sig .scVector .vmem S8x3200 .f32) (b : Memref sig .scVector .vmem S25600 .f32)
    (ga : Buf (Elt F) (a.view.loc (thr d L))) (gb : Buf (Elt F) (b.view.loc (thr d L))) (j : ℕ) : Prop :=
  ∀ (r : ℕ) (hr : r < 3200), r < 16 * j →
    b.view.read (Elt F) gb (ix1 (⟨r, by omega⟩ : Fin 25600)) = a.view.read (Elt F) ga (ix2 (0 : Fin 8) (⟨r, hr⟩ : Fin 3200))

theorem lanes_zero (a : Memref sig .scVector .vmem S8x3200 .f32) (b : Memref sig .scVector .vmem S25600 .f32)
    (ga : Buf (Elt F) (a.view.loc (thr d L))) (gb : Buf (Elt F) (b.view.loc (thr d L))) : Lanes d L a b ga gb 0 := by
  intro r hr h; omega

/-- The 1 × 16 window at column `c` of the staging array, read at lane `t`, is element `(0, c + t)`. -/
theorem idx_window {off : Fin 2 → ℕ} {c : ℕ} (h : off = ![0, c]) (p : ∀ a', off a' + S1x16.size a' ≤ S8x3200.size a')
    (t : Fin 16) (hr : c + t.val < 3200) :
    (Rect.unit (s := S8x3200) off S1x16.size p).toLoadRect.idx (ix2 (0 : Fin 1) t) = ix2 (0 : Fin 8) (⟨c + t.val, hr⟩ : Fin 3200) := by
  subst h
  funext a'; apply Fin.ext
  rw [LoadRect.idx_apply]
  match a' with
  | ⟨0, _⟩ => show 0 + 1 * 0 = 0; omega
  | ⟨1, _⟩ => show c + 1 * t.val = c + t.val; omega

/-- One trip of a lane-copy loop, the offsets given by their closed forms. -/
theorem lanes_step_core (a : Memref sig .scVector .vmem S8x3200 .f32) (b : Memref sig .scVector .vmem S25600 .f32)
    (ga : Buf (Elt F) (a.view.loc (thr d L))) (gb : Buf (Elt F) (b.view.loc (thr d L)))
    (t : ℕ) {off3 : Fin 2 → ℕ} {off4 : Fin 1 → ℕ} (h3 : off3 = ![0, 16 * t]) (h4 : off4 = ![16 * t])
    (p3 : ∀ a', off3 a' + S1x16.size a' ≤ S8x3200.size a') (p4 : ∀ a', off4 a' + S16.size a' ≤ S25600.size a')
    (h : Lanes d L a b ga gb t) :
    Lanes d L a b ga (b.view.writes (Elt F) gb [⟨Rect.unit (s := S25600) off4 S16.size p4,
      shapeCast S16 (a.view.readAt (Elt F) (Rect.unit (s := S8x3200) off3 S1x16.size p3).toLoadRect ga) shapeCasts_S1x16_S16⟩]) (t + 1) := by
  intro r hr hlt
  by_cases hlo : r < 16 * t
  · refine (View.read_writes_cons_unit_of_not_mem b.view gb p4 _ [] _ h4 (0 : Fin 1) (Or.inl ?_)).trans (h r hr hlo)
    show r < 16 * t
    exact hlo
  · have hx : r - 16 * t < 16 := by omega
    refine (View.read_writes_cons_unit_of_mem b.view gb p4 _ [] _ (ix1 (⟨r - 16 * t, hx⟩ : Fin 16)) h4 ?_).trans ?_
    · intro a'
      match a' with
      | ⟨0, _⟩ => show r = 16 * t + (r - 16 * t); omega
    · rw [shapeCast_1a_a_apply, View.readAt_apply, idx_window h3 p3 ⟨r - 16 * t, hx⟩ (by show 16 * t + (r - 16 * t) < 3200; omega)]
      congr 2
      apply Fin.ext
      show 16 * t + (r - 16 * t) = r
      omega

theorem lanes_step (a : Memref sig .scVector .vmem S8x3200 .f32) (b : Memref sig .scVector .vmem S25600 .f32)
    (ga : Buf (Elt F) (a.view.loc (thr d L))) (gb : Buf (Elt F) (b.view.loc (thr d L)))
    (j : Fin k20_t2_loop.trips) (p3 : ∀ a', (k20_off3 j) a' + S1x16.size a' ≤ S8x3200.size a')
    (p4 : ∀ a', (k20_off4 j) a' + S16.size a' ≤ S25600.size a') (h : Lanes d L a b ga gb j.val) :
    Lanes d L a b ga (b.view.writes (Elt F) gb [⟨Rect.unit (s := S25600) (k20_off4 j) S16.size p4,
      k20_pay1 (a.view.readAt (Elt F) (Rect.unit (s := S8x3200) (k20_off3 j) S1x16.size p3).toLoadRect ga)⟩]) (j.val + 1) :=
  lanes_step_core d L a b ga gb j.val (k20_off3_eq j) (k20_off4_eq j) p3 p4 h

theorem lanes_step' (a : Memref sig .scVector .vmem S8x3200 .f32) (b : Memref sig .scVector .vmem S25600 .f32)
    (ga : Buf (Elt F) (a.view.loc (thr d L))) (gb : Buf (Elt F) (b.view.loc (thr d L)))
    (j : Fin k20_t3_loop.trips) (p3 : ∀ a', (k20_off8 j) a' + S1x16.size a' ≤ S8x3200.size a')
    (p4 : ∀ a', (k20_off9 j) a' + S16.size a' ≤ S25600.size a') (h : Lanes d L a b ga gb j.val) :
    Lanes d L a b ga (b.view.writes (Elt F) gb [⟨Rect.unit (s := S25600) (k20_off9 j) S16.size p4,
      k20_pay2 (a.view.readAt (Elt F) (Rect.unit (s := S8x3200) (k20_off8 j) S1x16.size p3).toLoadRect ga)⟩]) (j.val + 1) :=
  lanes_step_core d L a b ga gb j.val (k20_off8_eq j) (k20_off9_eq j) p3 p4 h

/-- Position `y` of the write-out window of the flat staging array is its element `y 0`. -/
theorem stg_emb (y : S3200.Idx) (hy : (y 0).val < 25600) :
    (Rect.unit (s := S25600) ![0] S3200.size inb_S25600_S3200_0).emb y = ix1 (⟨(y 0).val, hy⟩ : Fin 25600) := by
  funext a'; apply Fin.ext
  match a' with
  | ⟨0, _⟩ => show 0 + 1 * (y 0).val = (y 0).val; omega

/-- Position `(0, t)` of row 0 of the staging array is its element `(0, t)`. -/
theorem row_emb (t : Fin 3200) : rowRect.emb (ix2 (0 : Fin 1) t) = ix2 (0 : Fin 8) t := by
  funext a'; apply Fin.ext
  match a' with
  | ⟨0, _⟩ => show 0 + 1 * 0 = 0; omega
  | ⟨1, _⟩ => show 0 + 1 * t.val = t.val; omega

/-- Position `(0, t)` of piece `n` of the argument row is element `(0, pos + t)` of the transposed argument;
    position `y` of piece `n` of the result is element `pos + y 0` of the result. -/
theorem in_emb (n : ℕ) (t : Fin 3200) (h : pos L n + t.val < 1600000) :
    (inM L n).view.emb (ix2 (0 : Fin 1) t) = ix2 (20 : Fin 22) (⟨pos L n + t.val, h⟩ : Fin 1600000) := by
  funext a'; apply Fin.ext
  match a' with
  | ⟨0, _⟩ => show 20 + 1 * 0 = 20; omega
  | ⟨1, _⟩ => show pos L n + 1 * t.val = pos L n + t.val; omega

theorem out_emb (n : ℕ) (y : S3200.Idx) (h : pos L n + (y 0).val < 1600000) :
    (outM L n).view.emb y = ix1 (⟨pos L n + (y 0).val, h⟩ : Fin 1600000) := by
  funext a'; apply Fin.ext
  match a' with
  | ⟨0, _⟩ => show pos L n + 1 * (y 0).val = pos L n + (y 0).val; omega

/-- Both lane-copy loops run 200 trips: 200 · 16 = 3200, the whole row. -/
theorem trips2 : k20_t2_loop.trips = 200 := by decide
theorem trips3 : k20_t3_loop.trips = 200 := by decide

/-- After all its trips a lane-copy loop has copied the whole row. -/
theorem lanes_all (a : Memref sig .scVector .vmem S8x3200 .f32) (b : Memref sig .scVector .vmem S25600 .f32)
    (ga : Buf (Elt F) (a.view.loc (thr d L))) (gb : Buf (Elt F) (b.view.loc (thr d L)))
    (h : Lanes d L a b ga gb k20_t2_loop.trips) : Lanes d L a b ga gb 200 := trips2 ▸ h
theorem lanes_all' (a : Memref sig .scVector .vmem S8x3200 .f32) (b : Memref sig .scVector .vmem S25600 .f32)
    (ga : Buf (Elt F) (a.view.loc (thr d L))) (gb : Buf (Elt F) (b.view.loc (thr d L)))
    (h : Lanes d L a b ga gb k20_t3_loop.trips) : Lanes d L a b ga gb 200 := trips3 ▸ h

/-- The write-out of a piece: the first 3200 elements of the flat staging array, which the 200 lane copies filled from
    row 0 of the staging array, which the fetch filled from piece `n` of row 20 of the transposed argument, land at
    piece `n` of the result, at the same positions of the row. -/
theorem out_written (a : Memref sig .scVector .vmem S8x3200 .f32) (b : Memref sig .scVector .vmem S25600 .f32) (n : ℕ)
    (ga : Buf (Elt F) (a.view.loc (thr d L))) (gb : Buf (Elt F) (b.view.loc (thr d L)))
    (f0 : Buf (Elt F) ((outM L n).view.loc (thr d L))) (w : S3200.Idx → Elt F .f32)
    (hw : ∀ y, w y = (stg b).view.read (Elt F) gb y) (hl : Lanes d L a b ga gb 200) (hr : InRow d L fx a ga n) (hv : valid L n) :
    ∀ i ∈ (outM L n).view.set, ((outM L n).view.writes (Elt F) f0 [⟨Rect.whole _, w⟩]) i = Cert.Spec.row 20 fx i := by
  intro i hi
  obtain ⟨y, -, rfl⟩ := Finset.mem_map.mp hi
  have hy : (y 0).val < 3200 := (y 0).isLt
  have hp : pos L n + (y 0).val < 1600000 := by unfold pos; omega
  have e1 : (outM L n).view.writes (Elt F) f0 [⟨Rect.whole _, w⟩] ((outM L n).view.emb y) = w y := by
    have h := View.read_writes_cons_emb (outM L n).view f0 (Rect.whole _) w [] y
    rw [Rect.emb_whole_apply] at h
    exact (cast_eq _ _).symm.trans ((View.read_apply _ _).symm.trans h)
  have e2 : (stg b).view.read (Elt F) gb y = b.view.read (Elt F) gb (ix1 (⟨(y 0).val, by omega⟩ : Fin 25600)) :=
    congrArg (b.view.read (Elt F) gb) (stg_emb y (by omega))
  have e3 : a.view.read (Elt F) ga (ix2 (0 : Fin 8) (⟨(y 0).val, hy⟩ : Fin 3200))
      = (inM L n).view.read (Elt F) fx (ix2 (0 : Fin 1) (⟨(y 0).val, hy⟩ : Fin 3200)) :=
    (congrArg (a.view.read (Elt F) ga) (row_emb ⟨(y 0).val, hy⟩).symm).trans (hr _)
  have e4 : (inM L n).view.read (Elt F) fx (ix2 (0 : Fin 1) (⟨(y 0).val, hy⟩ : Fin 3200))
      = fx (ix2 (20 : Fin 22) (⟨pos L n + (y 0).val, hp⟩ : Fin 1600000)) :=
    ((View.read_apply _ _).trans (cast_eq _ _)).trans (congrArg fx (in_emb L n ⟨(y 0).val, hy⟩ hp))
  have e5 : Cert.Spec.row 20 fx ((outM L n).view.emb y) = fx (ix2 (20 : Fin 22) (⟨pos L n + (y 0).val, hp⟩ : Fin 1600000)) :=
    (congrArg (Cert.Spec.row 20 fx) (out_emb L n y hp)).trans (Cert.Spec.row_apply 20 fx _)
  exact e1.trans ((hw y).trans (e2.trans ((hl _ hy (by omega)).trans (e3.trans (e4.trans e5.symm)))))

end Cert.Proof.TileVal20

end
-- ==== Proof.TileK20.lean ====
/-
  One vector subcore's task of copy kernel 20 (counting from 0), run symbolically: the two fetch slots and two write-out slots
  between trips of the main loop (what each transfer in flight will hand back, and what the staging buffers hold), the
  invariant of the main loop and of the two lane-copy loops, and the task's run — from the tile's pieces of row 20 of
  the transposed argument and of the result to the same pieces with the result holding the row's elements.
-/
import proofs.«206869_g37898791420194_cont_8to1_b_558_20_alg».proof.Proof.TileK20Defs
import proofs.«206869_g37898791420194_cont_8to1_b_558_20_alg».proof.Proof.TileVal20
noncomputable section

namespace Cert.Proof.TileK20

open Cert.KernelIdeal Cert.KernelIdeal.Gen Cert.Proof.TileVal20
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 22) (Elt F) ℕ UU ℕ
local notation "xtW" => (Memref.whole Cert.KernelIdeal.main_v0_scv : Memref Cert.KernelIdeal.sig Kind.scVector Space.hbm Cert.KernelIdeal.S22x1600000 EltTy.f32)
local notation "oW" => (Memref.whole Cert.KernelIdeal.main_v21_scv : Memref Cert.KernelIdeal.sig Kind.scVector Space.hbm Cert.KernelIdeal.S1600000 EltTy.f32)
local notation "a4" => (Memref.whole Cert.KernelIdeal.cc20_scratch0 : Memref Cert.KernelIdeal.sig Kind.scVector Space.vmem Cert.KernelIdeal.S8x3200 EltTy.f32)
local notation "a5" => (Memref.whole Cert.KernelIdeal.cc20_scratch1 : Memref Cert.KernelIdeal.sig Kind.scVector Space.vmem Cert.KernelIdeal.S8x3200 EltTy.f32)
local notation "a6" => (Memref.whole Cert.KernelIdeal.cc20_scratch2 : Memref Cert.KernelIdeal.sig Kind.scVector Space.vmem Cert.KernelIdeal.S25600 EltTy.f32)
local notation "a7" => (Memref.whole Cert.KernelIdeal.cc20_scratch3 : Memref Cert.KernelIdeal.sig Kind.scVector Space.vmem Cert.KernelIdeal.S25600 EltTy.f32)

variable [FloatOps F]

section Tile

variable (d : Dev nD) (L : grid20.Coords)
variable (O : CellTallies nD τ sig (HIx 22)) (W : Waits sig (HIx 22))
variable (fx : Buf (Elt F) ((xtW).view.loc (thr d L)))

/-- Piece `n` of the result at its final contents. -/
abbrev oqPiece (n : ℕ) : sProp 𝕄 := (outM L n).view.loc (thr d L) ↦[(outM L n).view.set]{fullShare} (Cert.Spec.row 20 fx)
theorem oQ_pos {n : ℕ} (v : valid L n) : oQ d L fx n = oqPiece d L fx n := if_pos v
theorem oQ_neg {n : ℕ} (v : ¬ valid L n) : oQ d L fx n = iprop(emp) := if_neg v

/-- A fetch slot, remembering that the staging row it will hand back holds the piece. -/
def inSlotV (a : Memref sig .scVector .vmem S8x3200 .f32) (sm : DmaSem sig) (n : ℕ) : sProp 𝕄 :=
  if valid L n then
    iprop(∃ g, ⌜InRow d L fx a g n⌝ ∗ Transfers.Flight countersEmb (thr d L) (SemLoc.dma sm) (default : HIx 22) NN
      iprop((a.view.loc (thr d L) ↦{fullShare} g) ∗ xtPiece d L fx n))
  else iprop((∃ g, a.view.loc (thr d L) ↦{fullShare} g) ∗ semVal (thr d L, SemLoc.dma sm) 0)

/-- A write-out slot: the piece in flight will come back holding the row's elements. -/
def outSlotV (a : Memref sig .scVector .vmem S25600 .f32) (sm : DmaSem sig) (m : ℕ) : sProp 𝕄 :=
  if 2 ≤ m ∧ valid L (m - 2) then
    iprop(∃ g, Transfers.Flight countersEmb (thr d L) (SemLoc.dma sm) (default : HIx 22) NN
        iprop(oqPiece d L fx (m - 2) ∗ ((stg a).view.loc (thr d L) ↦[(stg a).view.set]{fullShare} g))
      ∗ (a.view.loc (thr d L) ↦[Finset.univ \ (stg a).view.set]{fullShare} g))
  else iprop((∃ g, a.view.loc (thr d L) ↦{fullShare} g) ∗ semVal (thr d L, SemLoc.dma sm) 0)

theorem inSlotV_pos {a : Memref sig .scVector .vmem S8x3200 .f32} {sm : DmaSem sig} {n : ℕ} (v : valid L n) :
    inSlotV d L fx a sm n = iprop(∃ g, ⌜InRow d L fx a g n⌝ ∗ Transfers.Flight countersEmb (thr d L) (SemLoc.dma sm) (default : HIx 22) NN
      iprop((a.view.loc (thr d L) ↦{fullShare} g) ∗ xtPiece d L fx n)) := by unfold inSlotV; rw [if_pos v]
theorem inSlotV_neg {a : Memref sig .scVector .vmem S8x3200 .f32} {sm : DmaSem sig} {n : ℕ} (v : ¬ valid L n) :
    inSlotV d L fx a sm n = iprop((∃ g, a.view.loc (thr d L) ↦{fullShare} g) ∗ semVal (thr d L, SemLoc.dma sm) 0) := by
  unfold inSlotV; rw [if_neg v]
theorem outSlotV_pos {a : Memref sig .scVector .vmem S25600 .f32} {sm : DmaSem sig} {m : ℕ} (h : 2 ≤ m ∧ valid L (m - 2)) :
    outSlotV d L fx a sm m = iprop(∃ g, Transfers.Flight countersEmb (thr d L) (SemLoc.dma sm) (default : HIx 22) NN
        iprop(oqPiece d L fx (m - 2) ∗ ((stg a).view.loc (thr d L) ↦[(stg a).view.set]{fullShare} g))
      ∗ (a.view.loc (thr d L) ↦[Finset.univ \ (stg a).view.set]{fullShare} g)) := by unfold outSlotV; rw [if_pos h]
theorem outSlotV_neg {a : Memref sig .scVector .vmem S25600 .f32} {sm : DmaSem sig} {m : ℕ} (h : ¬ (2 ≤ m ∧ valid L (m - 2))) :
    outSlotV d L fx a sm m = iprop((∃ g, a.view.loc (thr d L) ↦{fullShare} g) ∗ semVal (thr d L, SemLoc.dma sm) 0) := by
  unfold outSlotV; rw [if_neg h]

/-- A fetch just issued: the staging row will hold what the transfer reads, which is the piece. -/
theorem fl_inV {off : Fin 2 → ℕ} {n : ℕ} (h : off = ![20, pos L n]) (p : ∀ a, off a + S1x3200.size a ≤ S22x1600000.size a) (v : valid L n)
    (a : Memref sig .scVector .vmem S8x3200 .f32) (sm : DmaSem sig) :
    (iprop(∃ (gold : Buf (Elt F) (a.view.loc (thr d L))) (w : S1x3200.Idx → Elt F .f32),
        ⌜∀ y, w y = ((xtW).slice (Rect.unit (s := S22x1600000) off S1x3200.size p) (fun _ => rfl)).view.read (Elt F) fx y⌝
        ∗ Transfers.Flight countersEmb (thr d L) (SemLoc.dma sm) (default : HIx 22) NN
          iprop((a.view.loc (thr d L) ↦{fullShare} a.view.writes (Elt F) gold [⟨rowRect, w⟩])
            ∗ (((xtW).slice (Rect.unit (s := S22x1600000) off S1x3200.size p) (fun _ => rfl)).view.loc (thr d L)
                ↦[((xtW).slice (Rect.unit (s := S22x1600000) off S1x3200.size p) (fun _ => rfl)).view.set]{fullShare} fx))) : sProp 𝕄)
      ⊢ inSlotV d L fx a sm n := by
  subst h
  rw [inSlotV_pos d L fx v]
  iintro ⟨%gold, %w, %hw, H⟩
  iexists _
  isplitr
  · ipureintro; exact inRow_fetch d L fx a gold w n hw
  · iexact H

set_option maxHeartbeats 4000000 in
/-- A write-out just issued from a flat staging buffer whose first 3200 elements are the staging row, itself piece
    `n` of the argument row: the piece of the result will hold the row's elements. -/
theorem fl_outV {off : Fin 1 → ℕ} {n : ℕ} (h : off = ![pos L n]) (p : ∀ a, off a + S3200.size a ≤ S1600000.size a) (v : valid L n)
    (ar : Memref sig .scVector .vmem S8x3200 .f32) (a : Memref sig .scVector .vmem S25600 .f32) (sm : DmaSem sig)
    (f0 : Buf (Elt F) ((oW).view.loc (thr d L))) (ga : Buf (Elt F) (ar.view.loc (thr d L))) (gb : Buf (Elt F) (a.view.loc (thr d L)))
    (hl : Lanes d L ar a ga gb 200) (hr : InRow d L fx ar ga n) :
    (iprop(∃ (w : S3200.Idx → Elt F .f32),
        ⌜∀ y, w y = (stg a).view.read (Elt F) gb y⌝
        ∗ Transfers.Flight countersEmb (thr d L) (SemLoc.dma sm) (default : HIx 22) NN
          iprop((((oW).slice (Rect.unit (s := S1600000) off S3200.size p) (fun _ => rfl)).view.loc (thr d L)
                ↦[((oW).slice (Rect.unit (s := S1600000) off S3200.size p) (fun _ => rfl)).view.set]{fullShare}
                  (((oW).slice (Rect.unit (s := S1600000) off S3200.size p) (fun _ => rfl)).view.writes (Elt F) f0 [⟨Rect.whole _, w⟩]))
            ∗ ((stg a).view.loc (thr d L) ↦[(stg a).view.set]{fullShare} gb))
        ∗ (a.view.loc (thr d L) ↦[Finset.univ \ (stg a).view.set]{fullShare} gb)) : sProp 𝕄)
      ⊢ outSlotV d L fx a sm (n + 2) := by
  subst h
  rw [outSlotV_pos d L fx (m := n + 2) ⟨by omega, by simpa using v⟩]
  iintro ⟨%w, %hw, H, R⟩
  have hD : (iprop(((outM L n).view.loc (thr d L) ↦[(outM L n).view.set]{fullShare} ((outM L n).view.writes (Elt F) f0 [⟨Rect.whole _, w⟩]))
          ∗ ((stg a).view.loc (thr d L) ↦[(stg a).view.set]{fullShare} gb)) : sProp 𝕄)
      ⊢ iprop(oqPiece d L fx (n + 2 - 2) ∗ ((stg a).view.loc (thr d L) ↦[(stg a).view.set]{fullShare} gb)) := by
    rw [Nat.add_sub_cancel]
    have e : (((outM L n).view.loc (thr d L) ↦[(outM L n).view.set]{fullShare} ((outM L n).view.writes (Elt F) f0 [⟨Rect.whole _, w⟩])) : sProp 𝕄)
        = oqPiece d L fx n := pointsTo_congr (out_written d L fx ar a n ga gb f0 w hw hl hr v)
    iintro ⟨H1, H2⟩
    isplitl [H1]
    · iapply (Entails.of_eq e); iexact H1
    · iexact H2
  iexists gb
  isplitl [H]
  · iapply (Transfers.Flight_mono countersEmb (thr d L) hD); iexact H
  · iexact R

/-- The result pieces outside the slots before trip `t`: those already written hold the row, the others some contents. -/
def oMix (t n : ℕ) : sProp 𝕄 := if n + 2 < 2 * t then oQ d L fx n else oP (F := F) d L n
theorem oMix_lt {t n : ℕ} (h : n + 2 < 2 * t) : oMix d L fx t n = oQ d L fx n := if_pos h
theorem oMix_ge {t n : ℕ} (h : ¬ n + 2 < 2 * t) : oMix d L fx t n = oP (F := F) d L n := if_neg h
theorem oMix_core (k : ℕ) : bigSep (oCore k) (oMix d L fx k) = bigSep (oCore k) (oMix d L fx (k + 1)) :=
  bigSep_congr fun n hn => by
    have hn' : n + 2 ≠ 2 * k ∧ n + 2 ≠ 2 * k + 1 ∧ n ≠ 2 * k ∧ n ≠ 2 * k + 1 := by
      simp only [oCore, Finset.mem_filter, Finset.mem_range] at hn; exact hn.2
    by_cases h : n + 2 < 2 * k
    · rw [oMix_lt d L fx h, oMix_lt d L fx (by omega)]
    · rw [oMix_ge d L fx h, oMix_ge d L fx (by omega)]
theorem oMix_zero : bigSep (oSet 0) (oMix d L fx 0) = bigSep (Finset.range 18) (oP (F := F) d L) := by
  rw [oSet_zero]; exact bigSep_congr fun n _ => oMix_ge d L fx (by omega)
theorem oMix_end : bigSep (oSet 8) (oMix d L fx 8) = bigSep (oSet 8) (oQ d L fx) :=
  bigSep_congr fun n hn => by
    have hn' : n < 18 ∧ n + 2 ≠ 16 ∧ n + 2 ≠ 17 := by simpa only [oSet, Finset.mem_filter, Finset.mem_range] using hn
    by_cases h : n + 2 < 2 * 8
    · exact oMix_lt d L fx h
    · rw [oMix_ge d L fx h, oP_neg (F := F) d L (by unfold valid; omega), oQ_neg d L fx (by unfold valid; omega)]

/-- The lane-copy loops: before trip `j` the first 16·j elements of the flat staging buffer are the staging row's. -/
def laneV0 (g4 : Buf (Elt F) ((a4).view.loc (thr d L))) (j : ℕ) (_ : PUnit) : sProp 𝕄 :=
  iprop(((a4).view.loc (thr d L) ↦{fullShare} g4) ∗ (∃ g, ((a6).view.loc (thr d L) ↦{fullShare} g) ∗ ⌜Lanes d L a4 a6 g4 g j⌝))
def laneV1 (g5 : Buf (Elt F) ((a5).view.loc (thr d L))) (j : ℕ) (_ : PUnit) : sProp 𝕄 :=
  iprop(((a5).view.loc (thr d L) ↦{fullShare} g5) ∗ (∃ g, ((a7).view.loc (thr d L) ↦{fullShare} g) ∗ ⌜Lanes d L a5 a7 g5 g j⌝))

def invV (t : ℕ) (_ : PUnit) : sProp 𝕄 :=
  iprop(Transfers.MayWaits (thr d L) (none : HIx 22) O
    ∗ (∃ W', ⌜∀ p ∈ W', p ∈ W ∨ p.2 = none⌝ ∗ owes (thr d L) O W')
    ∗ bigSep (xSet t) (xP d L fx) ∗ bigSep (oSet t) (oMix d L fx t)
    ∗ inSlotV d L fx a4 cc20_scratch4.sem (2 * t) ∗ outSlotV d L fx a6 cc20_scratch6.sem (2 * t)
    ∗ inSlotV d L fx a5 cc20_scratch5.sem (2 * t + 1) ∗ outSlotV d L fx a7 cc20_scratch7.sem (2 * t + 1))

/-- After the last trip nothing of the argument row is in a slot: the tile holds all its pieces. -/
theorem xRange_end : bigSep (xSet 8) (xP d L fx) ⊢ bigSep (Finset.range 18) (xP d L fx) := by
  rw [two_out (s := Finset.range 18) (a := 16) (b := 17) (by decide) (by decide) (by decide),
    show ((Finset.range 18).erase 16).erase 17 = xSet 8 by decide]
  iintro H
  isplitr; · iapply (Entails.of_eq (xP_neg d L fx (n := 16) (by unfold valid; omega)).symm); iempintro
  isplitr; · iapply (Entails.of_eq (xP_neg d L fx (n := 17) (by unfold valid; omega)).symm); iempintro
  iexact H
omit [FloatOps F] in
theorem oRange_end (Φ : ℕ → sProp 𝕄) : bigSep (Finset.range 18) Φ = iprop(Φ 14 ∗ Φ 15 ∗ bigSep (oSet 8) Φ) := by
  rw [two_out (s := Finset.range 18) (a := 14) (b := 15) (by decide) (by decide) (by decide),
    show ((Finset.range 18).erase 14).erase 15 = oSet 8 by decide]

/-- What the run starts from and ends with, beside an untouched rest `R`. -/
def runPre (R : sProp 𝕄) : sProp 𝕄 :=
    iprop(Transfers.MayWaits (thr d L) (none : HIx 22) O ∗ owes (thr d L) O W
        ∗ bigSep (Finset.range 18) (xP d L fx) ∗ bigSep (Finset.range 18) (oP (F := F) d L)
        ∗ (∃ g, (a4).view.loc (thr d L) ↦{fullShare} g) ∗ (∃ g, (a5).view.loc (thr d L) ↦{fullShare} g)
        ∗ (∃ g, (a6).view.loc (thr d L) ↦{fullShare} g) ∗ (∃ g, (a7).view.loc (thr d L) ↦{fullShare} g)
        ∗ semVal (thr d L, SemLoc.dma cc20_scratch4.sem) 0 ∗ semVal (thr d L, SemLoc.dma cc20_scratch5.sem) 0
        ∗ semVal (thr d L, SemLoc.dma cc20_scratch6.sem) 0 ∗ semVal (thr d L, SemLoc.dma cc20_scratch7.sem) 0 ∗ R)
def runPost (R : sProp 𝕄) : sProp 𝕄 :=
    iprop(bigSep (Finset.range 18) (xP d L fx) ∗ bigSep (Finset.range 18) (oQ d L fx)
            ∗ (∃ g, (a4).view.loc (thr d L) ↦{fullShare} g) ∗ (∃ g, (a5).view.loc (thr d L) ↦{fullShare} g)
            ∗ (∃ g, (a6).view.loc (thr d L) ↦{fullShare} g) ∗ (∃ g, (a7).view.loc (thr d L) ↦{fullShare} g)
            ∗ semVal (thr d L, SemLoc.dma cc20_scratch4.sem) 0 ∗ semVal (thr d L, SemLoc.dma cc20_scratch5.sem) 0
            ∗ semVal (thr d L, SemLoc.dma cc20_scratch6.sem) 0 ∗ semVal (thr d L, SemLoc.dma cc20_scratch7.sem) 0
            ∗ (∃ W', ⌜∀ p ∈ W', p ∈ W ∨ p.2 = none⌝ ∗ owes (thr d L) O W') ∗ R)

set_option maxHeartbeats 16000000 in
/-- The task's run: from its pieces of the argument row and of the result, the four staging buffers and the four
    semaphores at zero, to the same with every piece of the result holding the row's elements. -/
theorem tile_run (R : sProp 𝕄) :
    runPre d L O W fx R
      ⊢ wp frame (wpE (defs₀ (F := F)) 𝒱₀ (thr d L) none) Set.univ
          (cc20_sc_group L xtW (Memref.isWhole_whole _) oW (Memref.isWhole_whole _) a4 (Memref.isWhole_whole _) a5 (Memref.isWhole_whole _)
            a6 (Memref.isWhole_whole _) a7 (Memref.isWhole_whole _) cc20_scratch4 cc20_scratch5 cc20_scratch6 cc20_scratch7)
          fun _ => runPost d L O W fx R := by
  unfold runPre runPost
  have v0 : valid L 0 := Or.inl (by omega)
  have v1 : valid L 1 := Or.inl (by omega)
  have k20_h7 : k20_cond7 L = 1#1 := cond7_iff L
  iintro ⟨#Hmw, HO, HX, HOut, ⟨%g4, H4⟩, ⟨%g5, H5⟩, ⟨%g6, H6⟩, ⟨%g7, H7⟩, Hs8, Hs9, Hs10, Hs11, HR⟩
  ihave HX := (Entails.of_eq (xRange_split d L fx v0 v1)) $$ HX
  icases HX with ⟨X0, X1, HX⟩
  ihave X0 := (Entails.of_eq (in_congr d L (off_in0 L v0).symm (in_inb L _) (k20_off1_inb L 0) fx)) $$ X0
  ihave X1 := (Entails.of_eq (in_congr d L (off_in1 L v1).symm (in_inb L _) (k20_off1_inb L 1) fx)) $$ X1
  sl_unfold [cc20_sc_group]
  sl_exec
  ihave S8 := (fl_inV d L fx (off_in0 L v0) (k20_off1_inb L 0) v0 a4 cc20_scratch4.sem) $$ [Hs8]
  · iexists _, _
    isplitr
    rotate_left
    · iexact Hs8
    ipureintro; intro y; rfl
  ihave S9 := (fl_inV d L fx (off_in1 L v1) (k20_off1_inb L 1) v1 a5 cc20_scratch5.sem) $$ [Hs9]
  · iexists _, _
    isplitr
    rotate_left
    · iexact Hs9
    ipureintro; intro y; rfl
  sl_for (invV d L O W fx) $$ [HO HX HOut S8 S9 H6 H7 Hs10 Hs11]
  case region =>
    intro (k : Fin k20_t1_loop.trips) acc
    have hk : k.val < 8 := Nat.lt_of_lt_of_eq k.isLt trips1
    unfold invV
    iintro ⟨#Hmw, ⟨%W', %hW', HO⟩, HX, HOut, S8, S10, S9, S11⟩
    by_cases hk1 : 1 ≤ k.val
    · by_cases v3 : valid L (2 * k.val + 3)
      · -- the generic trip: both drains, both pieces worked, both next fetches issued
        have hk6 : k.val ≤ 6 := by unfold valid at v3; omega
        have k20_h1 : k20_cond1 k = 1#1 := (cond1_iff k).mpr (by omega)
        have k20_h2 : k20_cond2 L k = 1#1 := cond2_iff L k
        have k20_h3 : k20_cond3 L k = 1#1 := (cond3_iff L k).mpr (by omega)
        have k20_h4 : k20_cond4 k = 1#1 := (cond4_iff k).mpr (by omega)
        have k20_h5 : k20_cond5 L k = 1#1 := (cond5_iff L k).mpr (by first | (unfold valid big at *; omega) | (unfold big at *; omega) | omega)
        have k20_h6 : k20_cond6 L k = 1#1 := (cond6_iff L k).mpr (by first | (unfold valid big at *; omega) | (unfold big at *; omega) | omega)
        have v0 : valid L (2 * k.val) := by unfold valid big at *; omega
        have v1 : valid L (2 * k.val + 1) := by unfold valid big at *; omega
        have v2 : valid L (2 * k.val + 2) := by unfold valid big at *; omega
        have v3' : valid L (2 * k.val + 3) := by unfold valid big at *; omega
        have hm0 : 2 ≤ 2 * k.val ∧ valid L (2 * k.val - 2) := ⟨by omega, by unfold valid big at *; omega⟩
        have hm1 : 2 ≤ 2 * k.val + 1 ∧ valid L (2 * k.val + 1 - 2) := ⟨by omega, by unfold valid big at *; omega⟩
        ihave S8 := (Entails.of_eq (inSlotV_pos d L fx v0)) $$ S8
        icases S8 with ⟨%g4, %hin4, F8⟩
        ihave S9 := (Entails.of_eq (inSlotV_pos d L fx v1)) $$ S9
        icases S9 with ⟨%g5, %hin5, F9⟩
        ihave S10 := (Entails.of_eq (outSlotV_pos d L fx hm0)) $$ S10
        icases S10 with ⟨%g6, F10, R6⟩
        ihave S11 := (Entails.of_eq (outSlotV_pos d L fx hm1)) $$ S11
        icases S11 with ⟨%g7, F11, R7⟩
        ihave HX := (Entails.of_eq (xSet_out (xP d L fx) k.val hk)) $$ HX
        icases HX with ⟨X2, X3, HX⟩
        ihave X2 := (Entails.of_eq (xP_pos d L fx v2)) $$ X2
        ihave X2 := (Entails.of_eq (in_congr d L (off_6 L k v2).symm (in_inb L _) (k20_off6_inb L k k20_h3) fx)) $$ X2
        ihave X3 := (Entails.of_eq (xP_pos d L fx v3')) $$ X3
        ihave X3 := (Entails.of_eq (in_congr d L (off_11 L k v3').symm (in_inb L _) (k20_off11_inb L k k20_h6) fx)) $$ X3
        ihave HOut := (Entails.of_eq (oSet_out (oMix d L fx k.val) k.val hk)) $$ HOut
        icases HOut with ⟨Y0, Y1, HOut⟩
        ihave Y0 := (Entails.of_eq ((oMix_ge d L fx (t := k.val) (n := 2 * k.val) (by omega)).trans (oP_pos (F := F) d L v0))) $$ Y0
        icases Y0 with ⟨%f0, Y0⟩
        ihave Y0 := (Entails.of_eq (out_congr d L (off_5 L k v0).symm (out_inb L _) (k20_off5_inb L k k20_h2) f0)) $$ Y0
        ihave Y1 := (Entails.of_eq ((oMix_ge d L fx (t := k.val) (n := 2 * k.val + 1) (by omega)).trans (oP_pos (F := F) d L v1))) $$ Y1
        icases Y1 with ⟨%f1, Y1⟩
        ihave Y1 := (Entails.of_eq (out_congr d L (off_10 L k v1).symm (out_inb L _) (k20_off10_inb L k k20_h5) f1)) $$ Y1
        sl_exec
        sl_for (laneV0 d L g4) $$ [F8_dst R6]
        case region =>
          intro (j : Fin k20_t2_loop.trips) _
          unfold laneV0
          iintro ⟨HA, %g, HB, %hl⟩
          sl_exec
          sl_step
          isplitl [HA]; · iexact HA
          iexists _; isplitl [HB]; · iexact HB
          ipureintro; exact lanes_step d L a4 a6 g4 g j _ _ hl
        · unfold laneV0
          isplitl [F8_dst]; · iexact F8_dst
          iexists _; isplitl [R6]; · iexact R6
          ipureintro; exact lanes_zero d L a4 a6 g4 _
        iintro %_ HI
        unfold laneV0
        icases HI with ⟨H4, %g6', H6, %hl6⟩
        have hl6 : Lanes d L a4 a6 g4 g6' 200 := Eq.mp (congrArg (Lanes d L a4 a6 g4 g6') trips2) hl6
        sl_exec
        sl_for (laneV1 d L g5) $$ [F9_dst R7]
        case region =>
          intro (j : Fin k20_t3_loop.trips) _
          unfold laneV1
          iintro ⟨HA, %g, HB, %hl⟩
          sl_exec
          sl_step
          isplitl [HA]; · iexact HA
          iexists _; isplitl [HB]; · iexact HB
          ipureintro; exact lanes_step' d L a5 a7 g5 g j _ _ hl
        · unfold laneV1
          isplitl [F9_dst]; · iexact F9_dst
          iexists _; isplitl [R7]; · iexact R7
          ipureintro; exact lanes_zero d L a5 a7 g5 _
        iintro %_ HI
        unfold laneV1
        icases HI with ⟨H5, %g7', H7, %hl7⟩
        have hl7 : Lanes d L a5 a7 g5 g7' 200 := Eq.mp (congrArg (Lanes d L a5 a7 g5 g7') trips3) hl7
        sl_exec
        sl_step
        isplitr; · iexact Hmw
        isplitl [HO]
        · iexists _; isplitr
          rotate_left
          · iexact HO
          ipureintro; intro p hp
          rcases Finset.mem_insert.mp hp with rfl | hp
          · exact .inr rfl
          rcases Finset.mem_insert.mp hp with rfl | hp
          · exact .inr rfl
          rcases Finset.mem_insert.mp hp with rfl | hp
          · exact .inr rfl
          rcases Finset.mem_insert.mp hp with rfl | hp
          · exact .inr rfl
          exact hW' p hp
        isplitl [HX F8_src F9_src]
        · iapply (Entails.of_eq (xSet_in (xP d L fx) k.val hk).symm)
          isplitl [F8_src]; · iapply (Entails.of_eq (xP_pos d L fx v0).symm); iexact F8_src
          isplitl [F9_src]; · iapply (Entails.of_eq (xP_pos d L fx v1).symm); iexact F9_src
          iexact HX
        isplitl [HOut F10_dst F11_dst]
        · iapply (Entails.of_eq (oSet_in (oMix d L fx (k.val + 1)) k.val hk (by omega)).symm)
          isplitl [F10_dst]; · iapply (Entails.of_eq ((oMix_lt d L fx (t := k.val + 1) (n := 2 * k.val - 2) (by omega)).trans (oQ_pos d L fx hm0.2)).symm); iexact F10_dst
          isplitl [F11_dst]
          · iapply (Entails.of_eq ((oMix_lt d L fx (t := k.val + 1) (n := 2 * k.val - 1) (by omega)).trans (oQ_pos d L fx (n := 2 * k.val - 1) (by have := hm1.2; rwa [show 2 * k.val + 1 - 2 = 2 * k.val - 1 by omega] at this))).symm)
            iapply (Entails.of_eq (congrArg (oqPiece d L fx) (show 2 * k.val + 1 - 2 = 2 * k.val - 1 by omega))); iexact F11_dst
          iapply (Entails.of_eq (oMix_core d L fx k.val)); iexact HOut
        isplitl [F8]
        · iapply (Entails.of_eq (congrArg (inSlotV d L fx a4 cc20_scratch4.sem) (show 2 * k.val + 2 = 2 * (k.val + 1) by ring)))
          iapply (fl_inV d L fx (off_6 L k v2) (k20_off6_inb L k k20_h3) v2 a4 cc20_scratch4.sem); iexists _, _
          isplitr
          rotate_left
          · iexact F8
          ipureintro; intro y; rfl
        isplitl [F10 H6]
        · iapply (Entails.of_eq (congrArg (outSlotV d L fx a6 cc20_scratch6.sem) (show 2 * k.val + 2 = 2 * (k.val + 1) by ring)))
          iapply (fl_outV d L fx (off_5 L k v0) (k20_off5_inb L k k20_h2) v0 a4 a6 cc20_scratch6.sem f0 g4 g6' hl6 hin4); iexists _
          isplitr
          rotate_left
          · isplitl [F10]; · iexact F10
            iexact H6
          ipureintro; intro y; rfl
        isplitl [F9]
        · iapply (Entails.of_eq (congrArg (inSlotV d L fx a5 cc20_scratch5.sem) (show 2 * k.val + 3 = 2 * (k.val + 1) + 1 by ring)))
          iapply (fl_inV d L fx (off_11 L k v3') (k20_off11_inb L k k20_h6) v3' a5 cc20_scratch5.sem); iexists _, _
          isplitr
          rotate_left
          · iexact F9
          ipureintro; intro y; rfl
        · iapply (Entails.of_eq (congrArg (outSlotV d L fx a7 cc20_scratch7.sem) (show 2 * k.val + 1 + 2 = 2 * (k.val + 1) + 1 by ring)))
          iapply (fl_outV d L fx (off_10 L k v1) (k20_off10_inb L k k20_h5) v1 a5 a7 cc20_scratch7.sem f1 g5 g7' hl7 hin5); iexists _
          isplitr
          rotate_left
          · isplitl [F11]; · iexact F11
            iexact H7
          ipureintro; intro y; rfl
      · by_cases h6 : k.val = 6
        · have hb : ¬ big L := fun hb => v3 (Or.inr ⟨by omega, hb⟩)
          -- trip 6 of a tile with fifteen pieces: no sixteenth piece to fetch
          have k20_h1 : k20_cond1 k = 1#1 := (cond1_iff k).mpr (by omega)
          have k20_h2 : k20_cond2 L k = 1#1 := cond2_iff L k
          have k20_h3 : k20_cond3 L k = 1#1 := (cond3_iff L k).mpr (by omega)
          have k20_h4 : k20_cond4 k = 1#1 := (cond4_iff k).mpr (by omega)
          have k20_h5 : k20_cond5 L k = 1#1 := (cond5_iff L k).mpr (by first | (unfold valid big at *; omega) | (unfold big at *; omega) | omega)
          have k20_h6 : ¬ k20_cond6 L k = 1#1 := fun h => absurd ((cond6_iff L k).mp h) (by first | (unfold valid big at *; omega) | (unfold big at *; omega) | omega)
          have v0 : valid L (2 * k.val) := by unfold valid big at *; omega
          have v1 : valid L (2 * k.val + 1) := by unfold valid big at *; omega
          have v2 : valid L (2 * k.val + 2) := by unfold valid big at *; omega
          have v3' : ¬ valid L (2 * k.val + 3) := by unfold valid big at *; omega
          have hm0 : 2 ≤ 2 * k.val ∧ valid L (2 * k.val - 2) := ⟨by omega, by unfold valid big at *; omega⟩
          have hm1 : 2 ≤ 2 * k.val + 1 ∧ valid L (2 * k.val + 1 - 2) := ⟨by omega, by unfold valid big at *; omega⟩
          ihave S8 := (Entails.of_eq (inSlotV_pos d L fx v0)) $$ S8
          icases S8 with ⟨%g4, %hin4, F8⟩
          ihave S9 := (Entails.of_eq (inSlotV_pos d L fx v1)) $$ S9
          icases S9 with ⟨%g5, %hin5, F9⟩
          ihave S10 := (Entails.of_eq (outSlotV_pos d L fx hm0)) $$ S10
          icases S10 with ⟨%g6, F10, R6⟩
          ihave S11 := (Entails.of_eq (outSlotV_pos d L fx hm1)) $$ S11
          icases S11 with ⟨%g7, F11, R7⟩
          ihave HX := (Entails.of_eq (xSet_out (xP d L fx) k.val hk)) $$ HX
          icases HX with ⟨X2, -, HX⟩
          ihave X2 := (Entails.of_eq (xP_pos d L fx v2)) $$ X2
          ihave X2 := (Entails.of_eq (in_congr d L (off_6 L k v2).symm (in_inb L _) (k20_off6_inb L k k20_h3) fx)) $$ X2
          ihave HOut := (Entails.of_eq (oSet_out (oMix d L fx k.val) k.val hk)) $$ HOut
          icases HOut with ⟨Y0, Y1, HOut⟩
          ihave Y0 := (Entails.of_eq ((oMix_ge d L fx (t := k.val) (n := 2 * k.val) (by omega)).trans (oP_pos (F := F) d L v0))) $$ Y0
          icases Y0 with ⟨%f0, Y0⟩
          ihave Y0 := (Entails.of_eq (out_congr d L (off_5 L k v0).symm (out_inb L _) (k20_off5_inb L k k20_h2) f0)) $$ Y0
          ihave Y1 := (Entails.of_eq ((oMix_ge d L fx (t := k.val) (n := 2 * k.val + 1) (by omega)).trans (oP_pos (F := F) d L v1))) $$ Y1
          icases Y1 with ⟨%f1, Y1⟩
          ihave Y1 := (Entails.of_eq (out_congr d L (off_10 L k v1).symm (out_inb L _) (k20_off10_inb L k k20_h5) f1)) $$ Y1
          sl_exec
          sl_for (laneV0 d L g4) $$ [F8_dst R6]
          case region =>
            intro (j : Fin k20_t2_loop.trips) _
            unfold laneV0
            iintro ⟨HA, %g, HB, %hl⟩
            sl_exec
            sl_step
            isplitl [HA]; · iexact HA
            iexists _; isplitl [HB]; · iexact HB
            ipureintro; exact lanes_step d L a4 a6 g4 g j _ _ hl
          · unfold laneV0
            isplitl [F8_dst]; · iexact F8_dst
            iexists _; isplitl [R6]; · iexact R6
            ipureintro; exact lanes_zero d L a4 a6 g4 _
          iintro %_ HI
          unfold laneV0
          icases HI with ⟨H4, %g6', H6, %hl6⟩
          have hl6 : Lanes d L a4 a6 g4 g6' 200 := Eq.mp (congrArg (Lanes d L a4 a6 g4 g6') trips2) hl6
          sl_exec
          sl_for (laneV1 d L g5) $$ [F9_dst R7]
          case region =>
            intro (j : Fin k20_t3_loop.trips) _
            unfold laneV1
            iintro ⟨HA, %g, HB, %hl⟩
            sl_exec
            sl_step
            isplitl [HA]; · iexact HA
            iexists _; isplitl [HB]; · iexact HB
            ipureintro; exact lanes_step' d L a5 a7 g5 g j _ _ hl
          · unfold laneV1
            isplitl [F9_dst]; · iexact F9_dst
            iexists _; isplitl [R7]; · iexact R7
            ipureintro; exact lanes_zero d L a5 a7 g5 _
          iintro %_ HI
          unfold laneV1
          icases HI with ⟨H5, %g7', H7, %hl7⟩
          have hl7 : Lanes d L a5 a7 g5 g7' 200 := Eq.mp (congrArg (Lanes d L a5 a7 g5 g7') trips3) hl7
          sl_exec
          sl_step
          isplitr; · iexact Hmw
          isplitl [HO]
          · iexists _; isplitr
            rotate_left
            · iexact HO
            ipureintro; intro p hp
            rcases Finset.mem_insert.mp hp with rfl | hp
            · exact .inr rfl
            rcases Finset.mem_insert.mp hp with rfl | hp
            · exact .inr rfl
            rcases Finset.mem_insert.mp hp with rfl | hp
            · exact .inr rfl
            rcases Finset.mem_insert.mp hp with rfl | hp
            · exact .inr rfl
            exact hW' p hp
          isplitl [HX F8_src F9_src]
          · iapply (Entails.of_eq (xSet_in (xP d L fx) k.val hk).symm)
            isplitl [F8_src]; · iapply (Entails.of_eq (xP_pos d L fx v0).symm); iexact F8_src
            isplitl [F9_src]; · iapply (Entails.of_eq (xP_pos d L fx v1).symm); iexact F9_src
            iexact HX
          isplitl [HOut F10_dst F11_dst]
          · iapply (Entails.of_eq (oSet_in (oMix d L fx (k.val + 1)) k.val hk (by omega)).symm)
            isplitl [F10_dst]; · iapply (Entails.of_eq ((oMix_lt d L fx (t := k.val + 1) (n := 2 * k.val - 2) (by omega)).trans (oQ_pos d L fx hm0.2)).symm); iexact F10_dst
            isplitl [F11_dst]
            · iapply (Entails.of_eq ((oMix_lt d L fx (t := k.val + 1) (n := 2 * k.val - 1) (by omega)).trans (oQ_pos d L fx (n := 2 * k.val - 1) (by have := hm1.2; rwa [show 2 * k.val + 1 - 2 = 2 * k.val - 1 by omega] at this))).symm)
              iapply (Entails.of_eq (congrArg (oqPiece d L fx) (show 2 * k.val + 1 - 2 = 2 * k.val - 1 by omega))); iexact F11_dst
            iapply (Entails.of_eq (oMix_core d L fx k.val)); iexact HOut
          isplitl [F8]
          · iapply (Entails.of_eq (congrArg (inSlotV d L fx a4 cc20_scratch4.sem) (show 2 * k.val + 2 = 2 * (k.val + 1) by ring)))
            iapply (fl_inV d L fx (off_6 L k v2) (k20_off6_inb L k k20_h3) v2 a4 cc20_scratch4.sem); iexists _, _
            isplitr
            rotate_left
            · iexact F8
            ipureintro; intro y; rfl
          isplitl [F10 H6]
          · iapply (Entails.of_eq (congrArg (outSlotV d L fx a6 cc20_scratch6.sem) (show 2 * k.val + 2 = 2 * (k.val + 1) by ring)))
            iapply (fl_outV d L fx (off_5 L k v0) (k20_off5_inb L k k20_h2) v0 a4 a6 cc20_scratch6.sem f0 g4 g6' hl6 hin4); iexists _
            isplitr
            rotate_left
            · isplitl [F10]; · iexact F10
              iexact H6
            ipureintro; intro y; rfl
          isplitl [H5 F9]
          · iapply (Entails.of_eq (congrArg (inSlotV d L fx a5 cc20_scratch5.sem) (show 2 * k.val + 3 = 2 * (k.val + 1) + 1 by ring)))
            iapply (Entails.of_eq (inSlotV_neg d L fx v3').symm)
            isplitl [H5]; · iexists _; iexact H5
            iexact F9
          · iapply (Entails.of_eq (congrArg (outSlotV d L fx a7 cc20_scratch7.sem) (show 2 * k.val + 1 + 2 = 2 * (k.val + 1) + 1 by ring)))
            iapply (fl_outV d L fx (off_10 L k v1) (k20_off10_inb L k k20_h5) v1 a5 a7 cc20_scratch7.sem f1 g5 g7' hl7 hin5); iexists _
            isplitr
            rotate_left
            · isplitl [F11]; · iexact F11
              iexact H7
            ipureintro; intro y; rfl
        · have h7 : k.val = 7 := by unfold valid at v3; omega
          by_cases hb : big L
          · -- the last trip of a tile with sixteen pieces: nothing more to fetch
            have k20_h1 : k20_cond1 k = 1#1 := (cond1_iff k).mpr (by omega)
            have k20_h2 : k20_cond2 L k = 1#1 := cond2_iff L k
            have k20_h3 : ¬ k20_cond3 L k = 1#1 := fun h => absurd ((cond3_iff L k).mp h) (by omega)
            have k20_h4 : k20_cond4 k = 1#1 := (cond4_iff k).mpr (by omega)
            have k20_h5 : k20_cond5 L k = 1#1 := (cond5_iff L k).mpr (by first | (unfold valid big at *; omega) | (unfold big at *; omega) | omega)
            have k20_h6 : ¬ k20_cond6 L k = 1#1 := fun h => absurd ((cond6_iff L k).mp h) (by first | (unfold valid big at *; omega) | (unfold big at *; omega) | omega)
            have v0 : valid L (2 * k.val) := by unfold valid big at *; omega
            have v1 : valid L (2 * k.val + 1) := by unfold valid big at *; omega
            have v2 : ¬ valid L (2 * k.val + 2) := by unfold valid big at *; omega
            have v3' : ¬ valid L (2 * k.val + 3) := by unfold valid big at *; omega
            have hm0 : 2 ≤ 2 * k.val ∧ valid L (2 * k.val - 2) := ⟨by omega, by unfold valid big at *; omega⟩
            have hm1 : 2 ≤ 2 * k.val + 1 ∧ valid L (2 * k.val + 1 - 2) := ⟨by omega, by unfold valid big at *; omega⟩
            ihave S8 := (Entails.of_eq (inSlotV_pos d L fx v0)) $$ S8
            icases S8 with ⟨%g4, %hin4, F8⟩
            ihave S9 := (Entails.of_eq (inSlotV_pos d L fx v1)) $$ S9
            icases S9 with ⟨%g5, %hin5, F9⟩
            ihave S10 := (Entails.of_eq (outSlotV_pos d L fx hm0)) $$ S10
            icases S10 with ⟨%g6, F10, R6⟩
            ihave S11 := (Entails.of_eq (outSlotV_pos d L fx hm1)) $$ S11
            icases S11 with ⟨%g7, F11, R7⟩
            ihave HX := (Entails.of_eq (xSet_out (xP d L fx) k.val hk)) $$ HX
            icases HX with ⟨-, -, HX⟩
            ihave HOut := (Entails.of_eq (oSet_out (oMix d L fx k.val) k.val hk)) $$ HOut
            icases HOut with ⟨Y0, Y1, HOut⟩
            ihave Y0 := (Entails.of_eq ((oMix_ge d L fx (t := k.val) (n := 2 * k.val) (by omega)).trans (oP_pos (F := F) d L v0))) $$ Y0
            icases Y0 with ⟨%f0, Y0⟩
            ihave Y0 := (Entails.of_eq (out_congr d L (off_5 L k v0).symm (out_inb L _) (k20_off5_inb L k k20_h2) f0)) $$ Y0
            ihave Y1 := (Entails.of_eq ((oMix_ge d L fx (t := k.val) (n := 2 * k.val + 1) (by omega)).trans (oP_pos (F := F) d L v1))) $$ Y1
            icases Y1 with ⟨%f1, Y1⟩
            ihave Y1 := (Entails.of_eq (out_congr d L (off_10 L k v1).symm (out_inb L _) (k20_off10_inb L k k20_h5) f1)) $$ Y1
            sl_exec
            sl_for (laneV0 d L g4) $$ [F8_dst R6]
            case region =>
              intro (j : Fin k20_t2_loop.trips) _
              unfold laneV0
              iintro ⟨HA, %g, HB, %hl⟩
              sl_exec
              sl_step
              isplitl [HA]; · iexact HA
              iexists _; isplitl [HB]; · iexact HB
              ipureintro; exact lanes_step d L a4 a6 g4 g j _ _ hl
            · unfold laneV0
              isplitl [F8_dst]; · iexact F8_dst
              iexists _; isplitl [R6]; · iexact R6
              ipureintro; exact lanes_zero d L a4 a6 g4 _
            iintro %_ HI
            unfold laneV0
            icases HI with ⟨H4, %g6', H6, %hl6⟩
            have hl6 : Lanes d L a4 a6 g4 g6' 200 := Eq.mp (congrArg (Lanes d L a4 a6 g4 g6') trips2) hl6
            sl_exec
            sl_for (laneV1 d L g5) $$ [F9_dst R7]
            case region =>
              intro (j : Fin k20_t3_loop.trips) _
              unfold laneV1
              iintro ⟨HA, %g, HB, %hl⟩
              sl_exec
              sl_step
              isplitl [HA]; · iexact HA
              iexists _; isplitl [HB]; · iexact HB
              ipureintro; exact lanes_step' d L a5 a7 g5 g j _ _ hl
            · unfold laneV1
              isplitl [F9_dst]; · iexact F9_dst
              iexists _; isplitl [R7]; · iexact R7
              ipureintro; exact lanes_zero d L a5 a7 g5 _
            iintro %_ HI
            unfold laneV1
            icases HI with ⟨H5, %g7', H7, %hl7⟩
            have hl7 : Lanes d L a5 a7 g5 g7' 200 := Eq.mp (congrArg (Lanes d L a5 a7 g5 g7') trips3) hl7
            sl_exec
            sl_step
            isplitr; · iexact Hmw
            isplitl [HO]
            · iexists _; isplitr
              rotate_left
              · iexact HO
              ipureintro; intro p hp
              rcases Finset.mem_insert.mp hp with rfl | hp
              · exact .inr rfl
              rcases Finset.mem_insert.mp hp with rfl | hp
              · exact .inr rfl
              rcases Finset.mem_insert.mp hp with rfl | hp
              · exact .inr rfl
              rcases Finset.mem_insert.mp hp with rfl | hp
              · exact .inr rfl
              exact hW' p hp
            isplitl [HX F8_src F9_src]
            · iapply (Entails.of_eq (xSet_in (xP d L fx) k.val hk).symm)
              isplitl [F8_src]; · iapply (Entails.of_eq (xP_pos d L fx v0).symm); iexact F8_src
              isplitl [F9_src]; · iapply (Entails.of_eq (xP_pos d L fx v1).symm); iexact F9_src
              iexact HX
            isplitl [HOut F10_dst F11_dst]
            · iapply (Entails.of_eq (oSet_in (oMix d L fx (k.val + 1)) k.val hk (by omega)).symm)
              isplitl [F10_dst]; · iapply (Entails.of_eq ((oMix_lt d L fx (t := k.val + 1) (n := 2 * k.val - 2) (by omega)).trans (oQ_pos d L fx hm0.2)).symm); iexact F10_dst
              isplitl [F11_dst]
              · iapply (Entails.of_eq ((oMix_lt d L fx (t := k.val + 1) (n := 2 * k.val - 1) (by omega)).trans (oQ_pos d L fx (n := 2 * k.val - 1) (by have := hm1.2; rwa [show 2 * k.val + 1 - 2 = 2 * k.val - 1 by omega] at this))).symm)
                iapply (Entails.of_eq (congrArg (oqPiece d L fx) (show 2 * k.val + 1 - 2 = 2 * k.val - 1 by omega))); iexact F11_dst
              iapply (Entails.of_eq (oMix_core d L fx k.val)); iexact HOut
            isplitl [H4 F8]
            · iapply (Entails.of_eq (congrArg (inSlotV d L fx a4 cc20_scratch4.sem) (show 2 * k.val + 2 = 2 * (k.val + 1) by ring)))
              iapply (Entails.of_eq (inSlotV_neg d L fx v2).symm)
              isplitl [H4]; · iexists _; iexact H4
              iexact F8
            isplitl [F10 H6]
            · iapply (Entails.of_eq (congrArg (outSlotV d L fx a6 cc20_scratch6.sem) (show 2 * k.val + 2 = 2 * (k.val + 1) by ring)))
              iapply (fl_outV d L fx (off_5 L k v0) (k20_off5_inb L k k20_h2) v0 a4 a6 cc20_scratch6.sem f0 g4 g6' hl6 hin4); iexists _
              isplitr
              rotate_left
              · isplitl [F10]; · iexact F10
                iexact H6
              ipureintro; intro y; rfl
            isplitl [H5 F9]
            · iapply (Entails.of_eq (congrArg (inSlotV d L fx a5 cc20_scratch5.sem) (show 2 * k.val + 3 = 2 * (k.val + 1) + 1 by ring)))
              iapply (Entails.of_eq (inSlotV_neg d L fx v3').symm)
              isplitl [H5]; · iexists _; iexact H5
              iexact F9
            · iapply (Entails.of_eq (congrArg (outSlotV d L fx a7 cc20_scratch7.sem) (show 2 * k.val + 1 + 2 = 2 * (k.val + 1) + 1 by ring)))
              iapply (fl_outV d L fx (off_10 L k v1) (k20_off10_inb L k k20_h5) v1 a5 a7 cc20_scratch7.sem f1 g5 g7' hl7 hin5); iexists _
              isplitr
              rotate_left
              · isplitl [F11]; · iexact F11
                iexact H7
              ipureintro; intro y; rfl
          · -- the last trip of a tile with fifteen pieces: the second slot only drains
            have k20_h1 : k20_cond1 k = 1#1 := (cond1_iff k).mpr (by omega)
            have k20_h2 : k20_cond2 L k = 1#1 := cond2_iff L k
            have k20_h3 : ¬ k20_cond3 L k = 1#1 := fun h => absurd ((cond3_iff L k).mp h) (by omega)
            have k20_h4 : k20_cond4 k = 1#1 := (cond4_iff k).mpr (by omega)
            have k20_h5 : ¬ k20_cond5 L k = 1#1 := fun h => absurd ((cond5_iff L k).mp h) (by first | (unfold valid big at *; omega) | (unfold big at *; omega) | omega)
            have k20_h6 : ¬ k20_cond6 L k = 1#1 := fun h => absurd ((cond6_iff L k).mp h) (by first | (unfold valid big at *; omega) | (unfold big at *; omega) | omega)
            have v0 : valid L (2 * k.val) := by unfold valid big at *; omega
            have v1 : ¬ valid L (2 * k.val + 1) := by unfold valid big at *; omega
            have v2 : ¬ valid L (2 * k.val + 2) := by unfold valid big at *; omega
            have v3' : ¬ valid L (2 * k.val + 3) := by unfold valid big at *; omega
            have hm0 : 2 ≤ 2 * k.val ∧ valid L (2 * k.val - 2) := ⟨by omega, by unfold valid big at *; omega⟩
            have hm1 : 2 ≤ 2 * k.val + 1 ∧ valid L (2 * k.val + 1 - 2) := ⟨by omega, by unfold valid big at *; omega⟩
            ihave S8 := (Entails.of_eq (inSlotV_pos d L fx v0)) $$ S8
            icases S8 with ⟨%g4, %hin4, F8⟩
            ihave S9 := (Entails.of_eq (inSlotV_neg d L fx v1)) $$ S9
            icases S9 with ⟨⟨%g5, H5⟩, F9⟩
            ihave S10 := (Entails.of_eq (outSlotV_pos d L fx hm0)) $$ S10
            icases S10 with ⟨%g6, F10, R6⟩
            ihave S11 := (Entails.of_eq (outSlotV_pos d L fx hm1)) $$ S11
            icases S11 with ⟨%g7, F11, R7⟩
            ihave HX := (Entails.of_eq (xSet_out (xP d L fx) k.val hk)) $$ HX
            icases HX with ⟨-, -, HX⟩
            ihave HOut := (Entails.of_eq (oSet_out (oMix d L fx k.val) k.val hk)) $$ HOut
            icases HOut with ⟨Y0, -, HOut⟩
            ihave Y0 := (Entails.of_eq ((oMix_ge d L fx (t := k.val) (n := 2 * k.val) (by omega)).trans (oP_pos (F := F) d L v0))) $$ Y0
            icases Y0 with ⟨%f0, Y0⟩
            ihave Y0 := (Entails.of_eq (out_congr d L (off_5 L k v0).symm (out_inb L _) (k20_off5_inb L k k20_h2) f0)) $$ Y0
            sl_exec
            sl_for (laneV0 d L g4) $$ [F8_dst R6]
            case region =>
              intro (j : Fin k20_t2_loop.trips) _
              unfold laneV0
              iintro ⟨HA, %g, HB, %hl⟩
              sl_exec
              sl_step
              isplitl [HA]; · iexact HA
              iexists _; isplitl [HB]; · iexact HB
              ipureintro; exact lanes_step d L a4 a6 g4 g j _ _ hl
            · unfold laneV0
              isplitl [F8_dst]; · iexact F8_dst
              iexists _; isplitl [R6]; · iexact R6
              ipureintro; exact lanes_zero d L a4 a6 g4 _
            iintro %_ HI
            unfold laneV0
            icases HI with ⟨H4, %g6', H6, %hl6⟩
            have hl6 : Lanes d L a4 a6 g4 g6' 200 := Eq.mp (congrArg (Lanes d L a4 a6 g4 g6') trips2) hl6
            sl_exec
            sl_step
            isplitr; · iexact Hmw
            isplitl [HO]
            · iexists _; isplitr
              rotate_left
              · iexact HO
              ipureintro; intro p hp
              rcases Finset.mem_insert.mp hp with rfl | hp
              · exact .inr rfl
              rcases Finset.mem_insert.mp hp with rfl | hp
              · exact .inr rfl
              rcases Finset.mem_insert.mp hp with rfl | hp
              · exact .inr rfl
              exact hW' p hp
            isplitl [HX F8_src]
            · iapply (Entails.of_eq (xSet_in (xP d L fx) k.val hk).symm)
              isplitl [F8_src]; · iapply (Entails.of_eq (xP_pos d L fx v0).symm); iexact F8_src
              isplitr; · iapply (Entails.of_eq (xP_neg d L fx v1).symm); iempintro
              iexact HX
            isplitl [HOut F10_dst F11_dst]
            · iapply (Entails.of_eq (oSet_in (oMix d L fx (k.val + 1)) k.val hk (by omega)).symm)
              isplitl [F10_dst]; · iapply (Entails.of_eq ((oMix_lt d L fx (t := k.val + 1) (n := 2 * k.val - 2) (by omega)).trans (oQ_pos d L fx hm0.2)).symm); iexact F10_dst
              isplitl [F11_dst]
              · iapply (Entails.of_eq ((oMix_lt d L fx (t := k.val + 1) (n := 2 * k.val - 1) (by omega)).trans (oQ_pos d L fx (n := 2 * k.val - 1) (by have := hm1.2; rwa [show 2 * k.val + 1 - 2 = 2 * k.val - 1 by omega] at this))).symm)
                iapply (Entails.of_eq (congrArg (oqPiece d L fx) (show 2 * k.val + 1 - 2 = 2 * k.val - 1 by omega))); iexact F11_dst
              iapply (Entails.of_eq (oMix_core d L fx k.val)); iexact HOut
            isplitl [H4 F8]
            · iapply (Entails.of_eq (congrArg (inSlotV d L fx a4 cc20_scratch4.sem) (show 2 * k.val + 2 = 2 * (k.val + 1) by ring)))
              iapply (Entails.of_eq (inSlotV_neg d L fx v2).symm)
              isplitl [H4]; · iexists _; iexact H4
              iexact F8
            isplitl [F10 H6]
            · iapply (Entails.of_eq (congrArg (outSlotV d L fx a6 cc20_scratch6.sem) (show 2 * k.val + 2 = 2 * (k.val + 1) by ring)))
              iapply (fl_outV d L fx (off_5 L k v0) (k20_off5_inb L k k20_h2) v0 a4 a6 cc20_scratch6.sem f0 g4 g6' hl6 hin4); iexists _
              isplitr
              rotate_left
              · isplitl [F10]; · iexact F10
                iexact H6
              ipureintro; intro y; rfl
            isplitl [H5 F9]
            · iapply (Entails.of_eq (congrArg (inSlotV d L fx a5 cc20_scratch5.sem) (show 2 * k.val + 3 = 2 * (k.val + 1) + 1 by ring)))
              iapply (Entails.of_eq (inSlotV_neg d L fx v3').symm)
              isplitl [H5]; · iexists _; iexact H5
              iexact F9
            · iapply (Entails.of_eq (outSlotV_neg d L fx (m := 2 * (k.val + 1) + 1) (by intro h; apply v1; have := h.2; rwa [show 2 * (k.val + 1) + 1 - 2 = 2 * k.val + 1 by omega] at this)).symm)
              isplitl [R7]; · iexists _; iexact R7
              iexact F11
    · have hk0 : k.val = 0 := by omega
      -- the first trip: nothing to drain
      have k20_h1 : ¬ k20_cond1 k = 1#1 := fun h => absurd ((cond1_iff k).mp h) (by omega)
      have k20_h2 : k20_cond2 L k = 1#1 := cond2_iff L k
      have k20_h3 : k20_cond3 L k = 1#1 := (cond3_iff L k).mpr (by omega)
      have k20_h4 : ¬ k20_cond4 k = 1#1 := fun h => absurd ((cond4_iff k).mp h) (by omega)
      have k20_h5 : k20_cond5 L k = 1#1 := (cond5_iff L k).mpr (by first | (unfold valid big at *; omega) | (unfold big at *; omega) | omega)
      have k20_h6 : k20_cond6 L k = 1#1 := (cond6_iff L k).mpr (by first | (unfold valid big at *; omega) | (unfold big at *; omega) | omega)
      have v0 : valid L (2 * k.val) := by unfold valid big at *; omega
      have v1 : valid L (2 * k.val + 1) := by unfold valid big at *; omega
      have v2 : valid L (2 * k.val + 2) := by unfold valid big at *; omega
      have v3' : valid L (2 * k.val + 3) := by unfold valid big at *; omega
      have hm0 : ¬ (2 ≤ 2 * k.val ∧ valid L (2 * k.val - 2)) := by omega
      have hm1 : ¬ (2 ≤ 2 * k.val + 1 ∧ valid L (2 * k.val + 1 - 2)) := by omega
      ihave S8 := (Entails.of_eq (inSlotV_pos d L fx v0)) $$ S8
      icases S8 with ⟨%g4, %hin4, F8⟩
      ihave S9 := (Entails.of_eq (inSlotV_pos d L fx v1)) $$ S9
      icases S9 with ⟨%g5, %hin5, F9⟩
      ihave S10 := (Entails.of_eq (outSlotV_neg d L fx hm0)) $$ S10
      icases S10 with ⟨⟨%g6, R6⟩, F10⟩
      ihave S11 := (Entails.of_eq (outSlotV_neg d L fx hm1)) $$ S11
      icases S11 with ⟨⟨%g7, R7⟩, F11⟩
      ihave HX := (Entails.of_eq (xSet_out (xP d L fx) k.val hk)) $$ HX
      icases HX with ⟨X2, X3, HX⟩
      ihave X2 := (Entails.of_eq (xP_pos d L fx v2)) $$ X2
      ihave X2 := (Entails.of_eq (in_congr d L (off_6 L k v2).symm (in_inb L _) (k20_off6_inb L k k20_h3) fx)) $$ X2
      ihave X3 := (Entails.of_eq (xP_pos d L fx v3')) $$ X3
      ihave X3 := (Entails.of_eq (in_congr d L (off_11 L k v3').symm (in_inb L _) (k20_off11_inb L k k20_h6) fx)) $$ X3
      ihave HOut := (Entails.of_eq (oSet_out (oMix d L fx k.val) k.val hk)) $$ HOut
      icases HOut with ⟨Y0, Y1, HOut⟩
      ihave Y0 := (Entails.of_eq ((oMix_ge d L fx (t := k.val) (n := 2 * k.val) (by omega)).trans (oP_pos (F := F) d L v0))) $$ Y0
      icases Y0 with ⟨%f0, Y0⟩
      ihave Y0 := (Entails.of_eq (out_congr d L (off_5 L k v0).symm (out_inb L _) (k20_off5_inb L k k20_h2) f0)) $$ Y0
      ihave Y1 := (Entails.of_eq ((oMix_ge d L fx (t := k.val) (n := 2 * k.val + 1) (by omega)).trans (oP_pos (F := F) d L v1))) $$ Y1
      icases Y1 with ⟨%f1, Y1⟩
      ihave Y1 := (Entails.of_eq (out_congr d L (off_10 L k v1).symm (out_inb L _) (k20_off10_inb L k k20_h5) f1)) $$ Y1
      sl_exec
      sl_for (laneV0 d L g4) $$ [F8_dst R6]
      case region =>
        intro (j : Fin k20_t2_loop.trips) _
        unfold laneV0
        iintro ⟨HA, %g, HB, %hl⟩
        sl_exec
        sl_step
        isplitl [HA]; · iexact HA
        iexists _; isplitl [HB]; · iexact HB
        ipureintro; exact lanes_step d L a4 a6 g4 g j _ _ hl
      · unfold laneV0
        isplitl [F8_dst]; · iexact F8_dst
        iexists _; isplitl [R6]; · iexact R6
        ipureintro; exact lanes_zero d L a4 a6 g4 _
      iintro %_ HI
      unfold laneV0
      icases HI with ⟨H4, %g6', H6, %hl6⟩
      have hl6 : Lanes d L a4 a6 g4 g6' 200 := Eq.mp (congrArg (Lanes d L a4 a6 g4 g6') trips2) hl6
      sl_exec
      sl_for (laneV1 d L g5) $$ [F9_dst R7]
      case region =>
        intro (j : Fin k20_t3_loop.trips) _
        unfold laneV1
        iintro ⟨HA, %g, HB, %hl⟩
        sl_exec
        sl_step
        isplitl [HA]; · iexact HA
        iexists _; isplitl [HB]; · iexact HB
        ipureintro; exact lanes_step' d L a5 a7 g5 g j _ _ hl
      · unfold laneV1
        isplitl [F9_dst]; · iexact F9_dst
        iexists _; isplitl [R7]; · iexact R7
        ipureintro; exact lanes_zero d L a5 a7 g5 _
      iintro %_ HI
      unfold laneV1
      icases HI with ⟨H5, %g7', H7, %hl7⟩
      have hl7 : Lanes d L a5 a7 g5 g7' 200 := Eq.mp (congrArg (Lanes d L a5 a7 g5 g7') trips3) hl7
      sl_exec
      sl_step
      isplitr; · iexact Hmw
      isplitl [HO]
      · iexists _; isplitr
        rotate_left
        · iexact HO
        ipureintro; intro p hp
        rcases Finset.mem_insert.mp hp with rfl | hp
        · exact .inr rfl
        rcases Finset.mem_insert.mp hp with rfl | hp
        · exact .inr rfl
        exact hW' p hp
      isplitl [HX F8_src F9_src]
      · iapply (Entails.of_eq (xSet_in (xP d L fx) k.val hk).symm)
        isplitl [F8_src]; · iapply (Entails.of_eq (xP_pos d L fx v0).symm); iexact F8_src
        isplitl [F9_src]; · iapply (Entails.of_eq (xP_pos d L fx v1).symm); iexact F9_src
        iexact HX
      isplitl [HOut]
      · iapply (Entails.of_eq (congrArg (fun s => bigSep s (oMix d L fx (k.val + 1))) (show oCore k.val = oSet (k.val + 1) by rw [hk0]; decide)))
        iapply (Entails.of_eq (oMix_core d L fx k.val)); iexact HOut
      isplitl [F8]
      · iapply (Entails.of_eq (congrArg (inSlotV d L fx a4 cc20_scratch4.sem) (show 2 * k.val + 2 = 2 * (k.val + 1) by ring)))
        iapply (fl_inV d L fx (off_6 L k v2) (k20_off6_inb L k k20_h3) v2 a4 cc20_scratch4.sem); iexists _, _
        isplitr
        rotate_left
        · iexact F8
        ipureintro; intro y; rfl
      isplitl [F10 H6]
      · iapply (Entails.of_eq (congrArg (outSlotV d L fx a6 cc20_scratch6.sem) (show 2 * k.val + 2 = 2 * (k.val + 1) by ring)))
        iapply (fl_outV d L fx (off_5 L k v0) (k20_off5_inb L k k20_h2) v0 a4 a6 cc20_scratch6.sem f0 g4 g6' hl6 hin4); iexists _
        isplitr
        rotate_left
        · isplitl [F10]; · iexact F10
          iexact H6
        ipureintro; intro y; rfl
      isplitl [F9]
      · iapply (Entails.of_eq (congrArg (inSlotV d L fx a5 cc20_scratch5.sem) (show 2 * k.val + 3 = 2 * (k.val + 1) + 1 by ring)))
        iapply (fl_inV d L fx (off_11 L k v3') (k20_off11_inb L k k20_h6) v3' a5 cc20_scratch5.sem); iexists _, _
        isplitr
        rotate_left
        · iexact F9
        ipureintro; intro y; rfl
      · iapply (Entails.of_eq (congrArg (outSlotV d L fx a7 cc20_scratch7.sem) (show 2 * k.val + 1 + 2 = 2 * (k.val + 1) + 1 by ring)))
        iapply (fl_outV d L fx (off_10 L k v1) (k20_off10_inb L k k20_h5) v1 a5 a7 cc20_scratch7.sem f1 g5 g7' hl7 hin5); iexists _
        isplitr
        rotate_left
        · isplitl [F11]; · iexact F11
          iexact H7
        ipureintro; intro y; rfl
  · unfold invV
    isplitr; · iexact Hmw
    isplitl [HO]
    · iexists W; isplitr
      · ipureintro; exact fun p hp => .inl hp
      · iexact HO
    isplitl [HX]; · iexact HX
    isplitl [HOut]; · iapply (Entails.of_eq (oMix_zero d L fx).symm); iexact HOut
    isplitl [S8]; · iexact S8
    isplitl [H6 Hs10]
    · rw [outSlotV_neg d L fx (by omega)]; isplitl [H6]; · iexists _; iexact H6
      iexact Hs10
    isplitl [S9]; · iexact S9
    rw [outSlotV_neg d L fx (by omega)]; isplitl [H7]; · iexists _; iexact H7
    iexact Hs11
  iintro %acc' HI
  ihave HI := (Entails.of_eq (congrArg (fun t => invV d L O W fx t acc') trips1)) $$ HI
  unfold invV
  icases HI with ⟨-, ⟨%W', %hW', HO⟩, HX, HOut, S8, S10, S9, S11⟩
  have nv16 : ¬ valid L (2 * 8) := by unfold valid; omega
  have nv17 : ¬ valid L (2 * 8 + 1) := by unfold valid; omega
  have hm14 : 2 ≤ 2 * 8 ∧ valid L (2 * 8 - 2) := ⟨by omega, Or.inl (by omega)⟩
  ihave S8 := (Entails.of_eq (inSlotV_neg d L fx nv16)) $$ S8
  icases S8 with ⟨⟨%g4', H4⟩, Hs8⟩
  ihave S9 := (Entails.of_eq (inSlotV_neg d L fx nv17)) $$ S9
  icases S9 with ⟨⟨%g5', H5⟩, Hs9⟩
  ihave S10 := (Entails.of_eq (outSlotV_pos d L fx hm14)) $$ S10
  icases S10 with ⟨%g6', F10, R6⟩
  by_cases hb : big L
  · have k20_h8 : k20_cond8 L = 1#1 := (cond8_iff L).mpr hb
    have hm15 : 2 ≤ 2 * 8 + 1 ∧ valid L (2 * 8 + 1 - 2) := ⟨by omega, Or.inr ⟨by omega, hb⟩⟩
    ihave S11 := (Entails.of_eq (outSlotV_pos d L fx hm15)) $$ S11
    icases S11 with ⟨%g7', F11, R7⟩
    sl_exec
    sl_step
    isplitl [HX]; · iapply (xRange_end d L fx); iexact HX
    isplitl [HOut F10_dst F11_dst]
    · iapply (Entails.of_eq (oRange_end (oQ d L fx)).symm)
      isplitl [F10_dst]; · iapply (Entails.of_eq (oQ_pos d L fx hm14.2).symm); iexact F10_dst
      isplitl [F11_dst]; · iapply (Entails.of_eq (oQ_pos d L fx hm15.2).symm); iexact F11_dst
      iapply (Entails.of_eq (oMix_end d L fx)); iexact HOut
    isplitl [H4]; · iexists _; iexact H4
    isplitl [H5]; · iexists _; iexact H5
    isplitl [R6]; · iexists _; iexact R6
    isplitl [R7]; · iexists _; iexact R7
    isplitl [Hs8]; · iexact Hs8
    isplitl [Hs9]; · iexact Hs9
    isplitl [F10]; · iexact F10
    isplitl [F11]; · iexact F11
    isplitl [HO]
    · iexists _; isplitr
      rotate_left
      · iexact HO
      ipureintro; intro p hp
      rcases Finset.mem_insert.mp hp with rfl | hp
      · exact .inr rfl
      rcases Finset.mem_insert.mp hp with rfl | hp
      · exact .inr rfl
      exact hW' p hp
    iexact HR
  · have k20_h8 : ¬ k20_cond8 L = 1#1 := fun h => hb ((cond8_iff L).mp h)
    have hm15 : ¬ (2 ≤ 2 * 8 + 1 ∧ valid L (2 * 8 + 1 - 2)) := by intro h; have := h.2; unfold valid at this; omega
    ihave S11 := (Entails.of_eq (outSlotV_neg d L fx hm15)) $$ S11
    icases S11 with ⟨⟨%g7', R7⟩, F11⟩
    sl_exec
    sl_step
    isplitl [HX]; · iapply (xRange_end d L fx); iexact HX
    isplitl [HOut F10_dst]
    · iapply (Entails.of_eq (oRange_end (oQ d L fx)).symm)
      isplitl [F10_dst]; · iapply (Entails.of_eq (oQ_pos d L fx hm14.2).symm); iexact F10_dst
      isplitr; · iapply (Entails.of_eq (oQ_neg d L fx (n := 15) (by unfold valid; omega)).symm); iempintro
      iapply (Entails.of_eq (oMix_end d L fx)); iexact HOut
    isplitl [H4]; · iexists _; iexact H4
    isplitl [H5]; · iexists _; iexact H5
    isplitl [R6]; · iexists _; iexact R6
    isplitl [R7]; · iexists _; iexact R7
    isplitl [Hs8]; · iexact Hs8
    isplitl [Hs9]; · iexact Hs9
    isplitl [F10]; · iexact F10
    isplitl [F11]; · iexact F11
    isplitl [HO]
    · iexists _; isplitr
      rotate_left
      · iexact HO
      ipureintro; intro p hp
      rcases Finset.mem_insert.mp hp with rfl | hp
      · exact .inr rfl
      exact hW' p hp
    iexact HR

/-! The subcore's scoped storage: the four staging buffers and the four semaphores of this call, and the rest. -/

abbrev c8 : GSem nD τ sig := (thr d L, SemLoc.dma cc20_scratch4.sem)
abbrev c9 : GSem nD τ sig := (thr d L, SemLoc.dma cc20_scratch5.sem)
abbrev c10 : GSem nD τ sig := (thr d L, SemLoc.dma cc20_scratch6.sem)
abbrev c11 : GSem nD τ sig := (thr d L, SemLoc.dma cc20_scratch7.sem)

omit [FloatOps F] in
theorem ownSems0_V :
    (ownSems0 (thr d L) : sProp 𝕄)
      = iprop(semVal (c8 d L) 0 ∗ semVal (c9 d L) 0 ∗ semVal (c10 d L) 0 ∗ semVal (c11 d L) 0
          ∗ bigSep (((((ownCells (thr d L)).erase (c8 d L)).erase (c9 d L)).erase (c10 d L)).erase (c11 d L)) fun g => semVal g 0) := by
  unfold SparseCore.Cfg.ownSems0
  rw [SparseCore.bigSep_erase' ((mem_ownCells (g := c8 d L)).mpr ⟨rfl, by
      show (SemLoc.dma cc20_scratch4.sem : SemLoc sig).isScoped .scVector = true; decide⟩),
    SparseCore.bigSep_erase' (Finset.mem_erase.mpr ⟨fun e => absurd (Prod.mk.inj e).2 (by decide), (mem_ownCells (g := c9 d L)).mpr ⟨rfl, by
      show (SemLoc.dma cc20_scratch5.sem : SemLoc sig).isScoped .scVector = true; decide⟩⟩),
    SparseCore.bigSep_erase' (Finset.mem_erase.mpr ⟨fun e => absurd (Prod.mk.inj e).2 (by decide), Finset.mem_erase.mpr ⟨fun e => absurd (Prod.mk.inj e).2 (by decide),
      (mem_ownCells (g := c10 d L)).mpr ⟨rfl, by show (SemLoc.dma cc20_scratch6.sem : SemLoc sig).isScoped .scVector = true; decide⟩⟩⟩),
    SparseCore.bigSep_erase' (Finset.mem_erase.mpr ⟨fun e => absurd (Prod.mk.inj e).2 (by decide), Finset.mem_erase.mpr ⟨fun e => absurd (Prod.mk.inj e).2 (by decide),
      Finset.mem_erase.mpr ⟨fun e => absurd (Prod.mk.inj e).2 (by decide),
      (mem_ownCells (g := c11 d L)).mpr ⟨rfl, by show (SemLoc.dma cc20_scratch7.sem : SemLoc sig).isScoped .scVector = true; decide⟩⟩⟩⟩)]

abbrev pV (L : grid20.Coords) : Proc τ := Proc.scVector (cV L) (jV L)

omit [FloatOps F] in
theorem ownBufs_V :
    (ownBufs (thr d L) : sProp 𝕄)
      = iprop((∃ f, (thr d L).loc cc20_scratch0 ↦{fullShare} f) ∗ (∃ f, (thr d L).loc cc20_scratch1 ↦{fullShare} f)
          ∗ (∃ f, (thr d L).loc cc20_scratch2 ↦{fullShare} f) ∗ (∃ f, (thr d L).loc cc20_scratch3 ↦{fullShare} f)
          ∗ bigSep (((((ownRefs (τ := τ) (pV L)).erase ((pV L).devRef cc20_scratch0)).erase ((pV L).devRef cc20_scratch1)).erase
              ((pV L).devRef cc20_scratch2)).erase ((pV L).devRef cc20_scratch3))
              fun b => iprop(∃ f, ((d, b) : Loc nD τ sig) ↦{fullShare} f)) := by
  unfold SparseCore.Cfg.ownBufs
  refine (SparseCore.bigSep_erase' (SparseCore.Cfg.mem_ownRefs_of_owner (p := pV L) (b := (pV L).devRef cc20_scratch0) rfl)).trans ?_
  rw [SparseCore.bigSep_erase' (Finset.mem_erase.mpr ⟨fun e => absurd (Proc.devRef_injective _ e) (show (cc20_scratch1 : Ref sig .scVector) ≠ cc20_scratch0 by decide),
      SparseCore.Cfg.mem_ownRefs_of_owner (p := pV L) (b := (pV L).devRef cc20_scratch1) rfl⟩),
    SparseCore.bigSep_erase' (Finset.mem_erase.mpr ⟨fun e => absurd (Proc.devRef_injective _ e) (show (cc20_scratch2 : Ref sig .scVector) ≠ cc20_scratch1 by decide),
      Finset.mem_erase.mpr ⟨fun e => absurd (Proc.devRef_injective _ e) (show (cc20_scratch2 : Ref sig .scVector) ≠ cc20_scratch0 by decide),
      SparseCore.Cfg.mem_ownRefs_of_owner (p := pV L) (b := (pV L).devRef cc20_scratch2) rfl⟩⟩),
    SparseCore.bigSep_erase' (Finset.mem_erase.mpr ⟨fun e => absurd (Proc.devRef_injective _ e) (show (cc20_scratch3 : Ref sig .scVector) ≠ cc20_scratch2 by decide),
      Finset.mem_erase.mpr ⟨fun e => absurd (Proc.devRef_injective _ e) (show (cc20_scratch3 : Ref sig .scVector) ≠ cc20_scratch1 by decide),
      Finset.mem_erase.mpr ⟨fun e => absurd (Proc.devRef_injective _ e) (show (cc20_scratch3 : Ref sig .scVector) ≠ cc20_scratch0 by decide),
      SparseCore.Cfg.mem_ownRefs_of_owner (p := pV L) (b := (pV L).devRef cc20_scratch3) rfl⟩⟩⟩)]

/-- The rest of the subcore's scoped storage, which the task does not touch. -/
def restR : sProp 𝕄 :=
  iprop((bigSep (((((ownRefs (τ := τ) (pV L)).erase ((pV L).devRef cc20_scratch0)).erase ((pV L).devRef cc20_scratch1)).erase
              ((pV L).devRef cc20_scratch2)).erase ((pV L).devRef cc20_scratch3))
              fun b => iprop(∃ f, ((d, b) : Loc nD τ sig) ↦{fullShare} f))
      ∗ bigSep (((((ownCells (thr d L)).erase (c8 d L)).erase (c9 d L)).erase (c10 d L)).erase (c11 d L)) fun g => semVal g 0)

theorem body_pre (hO : ∀ g, O g none = 0) :
    iprop(levAts (K (F := F)).L (K (F := F)).lev ∗ emp ∗ goRes d L fx ∗ ownBufs (thr d L) ∗ ownSems0 (thr d L) ∗ owes (thr d L) O W)
      ⊢ runPre d L O W fx (restR (F := F) d L) := by
  rw [ownSems0_V, ownBufs_V]
  unfold goRes runPre restR
  iintro ⟨#Hlv, -, ⟨HX, HOut⟩, ⟨H4, H5, H6, H7, Hbufs⟩, ⟨Hs8, Hs9, Hs10, Hs11, Hsems⟩, HO⟩
  ihave Hmw := ((K (F := F)).mayWaits_none (thr := thr d L) hO) $$ Hlv
  isplitr; · iexact Hmw
  isplitl [HO]; · iexact HO
  isplitl [HX]; · iexact HX
  isplitl [HOut]; · iexact HOut
  isplitl [H4]; · iexact H4
  isplitl [H5]; · iexact H5
  isplitl [H6]; · iexact H6
  isplitl [H7]; · iexact H7
  isplitl [Hs8]; · iexact Hs8
  isplitl [Hs9]; · iexact Hs9
  isplitl [Hs10]; · iexact Hs10
  isplitl [Hs11]; · iexact Hs11
  isplitl [Hbufs]; · iexact Hbufs
  iexact Hsems

theorem body_post :
    runPost d L O W fx (restR (F := F) d L)
      ⊢ iprop(tdRes d L fx ∗ ownBufs (thr d L) ∗ ownSems0 (thr d L) ∗ ∃ W', ⌜∀ p ∈ W', p ∈ W ∨ p.2 = none⌝ ∗ owes (thr d L) O W') := by
  rw [ownSems0_V, ownBufs_V]
  unfold tdRes runPost restR
  iintro ⟨HX, HOut, H4, H5, H6, H7, Hs8, Hs9, Hs10, Hs11, HW, Hbufs, Hsems⟩
  isplitl [HX HOut]
  · isplitl [HX]; · iexact HX
    iexact HOut
  isplitl [H4 H5 H6 H7 Hbufs]
  · isplitl [H4]; · iexact H4
    isplitl [H5]; · iexact H5
    isplitl [H6]; · iexact H6
    isplitl [H7]; · iexact H7
    iexact Hbufs
  isplitl [Hs8 Hs9 Hs10 Hs11 Hsems]
  · isplitl [Hs8]; · iexact Hs8
    isplitl [Hs9]; · iexact Hs9
    isplitl [Hs10]; · iexact Hs10
    isplitl [Hs11]; · iexact Hs11
    iexact Hsems
  iexact HW

/-- The task in the launch theorem's shape: from what the call hands the tile and the subcore's scoped storage to
    what the tile hands back and the storage again. -/
theorem tile_body (hF : (K (F := F)).Facts) (hO : ∀ g, O g none = 0) :
    iprop(levAts (K (F := F)).L (K (F := F)).lev ∗ emp ∗ goRes d L fx ∗ scopedBufs (thr d L) ∗ scopedSems0 (thr d L) ∗ owes (thr d L) O W)
      ⊢ wp frame (wpE (defs₀ (F := F)) 𝒱₀ (thr d L) none) Set.univ
          (cc20_sc_group L xtW (Memref.isWhole_whole _) oW (Memref.isWhole_whole _) a4 (Memref.isWhole_whole _) a5 (Memref.isWhole_whole _)
            a6 (Memref.isWhole_whole _) a7 (Memref.isWhole_whole _) cc20_scratch4 cc20_scratch5 cc20_scratch6 cc20_scratch7)
          fun _ => iprop(tdRes d L fx ∗ scopedBufs (thr d L) ∗ scopedSems0 (thr d L)
            ∗ ∃ W', ⌜∀ p ∈ W', p ∈ W ∨ p.2 = none⌝ ∗ owes (thr d L) O W') := by
  rw [(K (F := F)).scopedBufs_V hF d (cV L) (jV L), SparseCore.Cfg.scopedSems0_V (Val := Elt F) d (cV L) (jV L)]
  exact (body_pre d L O W fx hO).trans ((tile_run d L O W fx (restR (F := F) d L)).trans (wp_mono frame _ _ fun _ => body_post d L O W fx))

end Tile

end Cert.Proof.TileK20

end
-- ==== Proof.TileBVal20.lean ====
/-
  What the staging buffers of one vector subcore hold while it copies a piece of 3200 consecutive elements of row 20 of
  the transposed argument into the flat result, read index by index. No program and no ownership here: only the contents.

  A transfer lands the piece in row 0 of an 8 × 3200 staging array (`InRow`: position (0, t) of that row holds element
  (0, pos + t) of the transposed argument, `pos` the piece's first column). A loop of 200 trips copies that row, 16 lanes
  per trip, into the first 3200 elements of a flat staging array of 25600: trip `j` reads the 1 × 16 window at columns
  [16 j, 16 j + 16) of row 0 and writes it, flattened, at elements [16 j, 16 j + 16). After `j` trips the first 16 j
  elements of the flat array are the first 16 j elements of the row (`Lanes`); a trip extends the prefix by 16
  (`lanes_step`: an element below 16 j is outside the window written and keeps its value, an element of the window reads
  the lane written there, which is the row's element at the same column). A second transfer writes the first 3200
  elements of the flat array to the piece of the result at the same `pos`; so every element of that piece of the result
  holds the element of row 20 of the transposed argument at its own position (`out_written`): the composite of the three
  index maps t ↦ (0, pos + t) ↦ (0, t) ↦ t ↦ pos + t is the identity on positions of the row.
-/
import proofs.«206869_g37898791420194_cont_8to1_b_558_20_alg».proof.Proof.TileB20Defs
import proofs.«206869_g37898791420194_cont_8to1_b_558_20_alg».proof.Proof.Spec
import Idealize.ShloMosaic.Lib.WritesUnit
import Idealize.ShloMosaic.Lib.ValueLayout

noncomputable section

namespace Cert.Proof.TileBVal20

open Cert.Proof.TileB20 Cert.Kernel Cert.Kernel.Gen
open Idealize.ShloMosaic Idealize.ShloMosaic.ValueIdx

variable {F : FTy → Type} [FloatOps F]
variable (d : Dev nD) (L : grid20.Coords)
variable (fx : Buf (Elt F) ((Memref.whole main_v0_scv : Memref sig .scVector .hbm S22x1600000 .f32).view.loc (thr d L)))

abbrev rowRect : Rect S8x3200 := Rect.unit (s := S8x3200) ![0, 0] S1x3200.size inb_S8x3200_S1x3200_0_0

/-- row 0 of the staging array is piece n of the argument row -/
def InRow (a : Memref sig .scVector .vmem S8x3200 .f32) (ga : Buf (Elt F) (a.view.loc (thr d L))) (n : ℕ) : Prop :=
  ∀ y : S1x3200.Idx, a.view.read (Elt F) ga (rowRect.emb y) = (inM L n).view.read (Elt F) fx y

theorem inRow_fetch (a : Memref sig .scVector .vmem S8x3200 .f32) (gold : Buf (Elt F) (a.view.loc (thr d L)))
    (w : S1x3200.Idx → Elt F .f32) (n : ℕ) (hw : ∀ y, w y = (inM L n).view.read (Elt F) fx y) :
    InRow d L fx a (a.view.writes (Elt F) gold [⟨rowRect, w⟩]) n :=
  fun y => (View.read_writes_cons_emb a.view gold rowRect w [] y).trans (hw y)

def Lanes (a : Memref sig .scVector .vmem S8x3200 .f32) (b : Memref sig .scVector .vmem S25600 .f32)
    (ga : Buf (Elt F) (a.view.loc (thr d L))) (gb : Buf (Elt F) (b.view.loc (thr d L))) (j : ℕ) : Prop :=
  ∀ (r : ℕ) (hr : r < 3200), r < 16 * j →
    b.view.read (Elt F) gb (ix1 (⟨r, by omega⟩ : Fin 25600)) = a.view.read (Elt F) ga (ix2 (0 : Fin 8) (⟨r, hr⟩ : Fin 3200))

theorem lanes_zero (a : Memref sig .scVector .vmem S8x3200 .f32) (b : Memref sig .scVector .vmem S25600 .f32)
    (ga : Buf (Elt F) (a.view.loc (thr d L))) (gb : Buf (Elt F) (b.view.loc (thr d L))) : Lanes d L a b ga gb 0 := by
  intro r hr h; omega

/-- The 1 × 16 window at column `c` of the staging array, read at lane `t`, is element `(0, c + t)`. -/
theorem idx_window {off : Fin 2 → ℕ} {c : ℕ} (h : off = ![0, c]) (p : ∀ a', off a' + S1x16.size a' ≤ S8x3200.size a')
    (t : Fin 16) (hr : c + t.val < 3200) :
    (Rect.unit (s := S8x3200) off S1x16.size p).toLoadRect.idx (ix2 (0 : Fin 1) t) = ix2 (0 : Fin 8) (⟨c + t.val, hr⟩ : Fin 3200) := by
  subst h
  funext a'; apply Fin.ext
  rw [LoadRect.idx_apply]
  match a' with
  | ⟨0, _⟩ => show 0 + 1 * 0 = 0; omega
  | ⟨1, _⟩ => show c + 1 * t.val = c + t.val; omega

/-- One trip of a lane-copy loop, the offsets given by their closed forms. -/
theorem lanes_step_core (a : Memref sig .scVector .vmem S8x3200 .f32) (b : Memref sig .scVector .vmem S25600 .f32)
    (ga : Buf (Elt F) (a.view.loc (thr d L))) (gb : Buf (Elt F) (b.view.loc (thr d L)))
    (t : ℕ) {off3 : Fin 2 → ℕ} {off4 : Fin 1 → ℕ} (h3 : off3 = ![0, 16 * t]) (h4 : off4 = ![16 * t])
    (p3 : ∀ a', off3 a' + S1x16.size a' ≤ S8x3200.size a') (p4 : ∀ a', off4 a' + S16.size a' ≤ S25600.size a')
    (h : Lanes d L a b ga gb t) :
    Lanes d L a b ga (b.view.writes (Elt F) gb [⟨Rect.unit (s := S25600) off4 S16.size p4,
      shapeCast S16 (a.view.readAt (Elt F) (Rect.unit (s := S8x3200) off3 S1x16.size p3).toLoadRect ga) shapeCasts_S1x16_S16⟩]) (t + 1) := by
  intro r hr hlt
  by_cases hlo : r < 16 * t
  · refine (View.read_writes_cons_unit_of_not_mem b.view gb p4 _ [] _ h4 (0 : Fin 1) (Or.inl ?_)).trans (h r hr hlo)
    show r < 16 * t
    exact hlo
  · have hx : r - 16 * t < 16 := by omega
    refine (View.read_writes_cons_unit_of_mem b.view gb p4 _ [] _ (ix1 (⟨r - 16 * t, hx⟩ : Fin 16)) h4 ?_).trans ?_
    · intro a'
      match a' with
      | ⟨0, _⟩ => show r = 16 * t + (r - 16 * t); omega
    · rw [shapeCast_1a_a_apply, View.readAt_apply, idx_window h3 p3 ⟨r - 16 * t, hx⟩ (by show 16 * t + (r - 16 * t) < 3200; omega)]
      congr 2
      apply Fin.ext
      show 16 * t + (r - 16 * t) = r
      omega

theorem lanes_step (a : Memref sig .scVector .vmem S8x3200 .f32) (b : Memref sig .scVector .vmem S25600 .f32)
    (ga : Buf (Elt F) (a.view.loc (thr d L))) (gb : Buf (Elt F) (b.view.loc (thr d L)))
    (j : Fin k20_t2_loop.trips) (p3 : ∀ a', (k20_off3 j) a' + S1x16.size a' ≤ S8x3200.size a')
    (p4 : ∀ a', (k20_off4 j) a' + S16.size a' ≤ S25600.size a') (h : Lanes d L a b ga gb j.val) :
    Lanes d L a b ga (b.view.writes (Elt F) gb [⟨Rect.unit (s := S25600) (k20_off4 j) S16.size p4,
      k20_pay1 (a.view.readAt (Elt F) (Rect.unit (s := S8x3200) (k20_off3 j) S1x16.size p3).toLoadRect ga)⟩]) (j.val + 1) :=
  lanes_step_core d L a b ga gb j.val (k20_off3_eq j) (k20_off4_eq j) p3 p4 h

theorem lanes_step' (a : Memref sig .scVector .vmem S8x3200 .f32) (b : Memref sig .scVector .vmem S25600 .f32)
    (ga : Buf (Elt F) (a.view.loc (thr d L))) (gb : Buf (Elt F) (b.view.loc (thr d L)))
    (j : Fin k20_t3_loop.trips) (p3 : ∀ a', (k20_off8 j) a' + S1x16.size a' ≤ S8x3200.size a')
    (p4 : ∀ a', (k20_off9 j) a' + S16.size a' ≤ S25600.size a') (h : Lanes d L a b ga gb j.val) :
    Lanes d L a b ga (b.view.writes (Elt F) gb [⟨Rect.unit (s := S25600) (k20_off9 j) S16.size p4,
      k20_pay2 (a.view.readAt (Elt F) (Rect.unit (s := S8x3200) (k20_off8 j) S1x16.size p3).toLoadRect ga)⟩]) (j.val + 1) :=
  lanes_step_core d L a b ga gb j.val (k20_off8_eq j) (k20_off9_eq j) p3 p4 h

/-- Position `y` of the write-out window of the flat staging array is its element `y 0`. -/
theorem stg_emb (y : S3200.Idx) (hy : (y 0).val < 25600) :
    (Rect.unit (s := S25600) ![0] S3200.size inb_S25600_S3200_0).emb y = ix1 (⟨(y 0).val, hy⟩ : Fin 25600) := by
  funext a'; apply Fin.ext
  match a' with
  | ⟨0, _⟩ => show 0 + 1 * (y 0).val = (y 0).val; omega

/-- Position `(0, t)` of row 0 of the staging array is its element `(0, t)`. -/
theorem row_emb (t : Fin 3200) : rowRect.emb (ix2 (0 : Fin 1) t) = ix2 (0 : Fin 8) t := by
  funext a'; apply Fin.ext
  match a' with
  | ⟨0, _⟩ => show 0 + 1 * 0 = 0; omega
  | ⟨1, _⟩ => show 0 + 1 * t.val = t.val; omega

/-- Position `(0, t)` of piece `n` of the argument row is element `(0, pos + t)` of the transposed argument;
    position `y` of piece `n` of the result is element `pos + y 0` of the result. -/
theorem in_emb (n : ℕ) (t : Fin 3200) (h : pos L n + t.val < 1600000) :
    (inM L n).view.emb (ix2 (0 : Fin 1) t) = ix2 (20 : Fin 22) (⟨pos L n + t.val, h⟩ : Fin 1600000) := by
  funext a'; apply Fin.ext
  match a' with
  | ⟨0, _⟩ => show 20 + 1 * 0 = 20; omega
  | ⟨1, _⟩ => show pos L n + 1 * t.val = pos L n + t.val; omega

theorem out_emb (n : ℕ) (y : S3200.Idx) (h : pos L n + (y 0).val < 1600000) :
    (outM L n).view.emb y = ix1 (⟨pos L n + (y 0).val, h⟩ : Fin 1600000) := by
  funext a'; apply Fin.ext
  match a' with
  | ⟨0, _⟩ => show pos L n + 1 * (y 0).val = pos L n + (y 0).val; omega

/-- Both lane-copy loops run 200 trips: 200 · 16 = 3200, the whole row. -/
theorem trips2 : k20_t2_loop.trips = 200 := by decide
theorem trips3 : k20_t3_loop.trips = 200 := by decide

/-- After all its trips a lane-copy loop has copied the whole row. -/
theorem lanes_all (a : Memref sig .scVector .vmem S8x3200 .f32) (b : Memref sig .scVector .vmem S25600 .f32)
    (ga : Buf (Elt F) (a.view.loc (thr d L))) (gb : Buf (Elt F) (b.view.loc (thr d L)))
    (h : Lanes d L a b ga gb k20_t2_loop.trips) : Lanes d L a b ga gb 200 := trips2 ▸ h
theorem lanes_all' (a : Memref sig .scVector .vmem S8x3200 .f32) (b : Memref sig .scVector .vmem S25600 .f32)
    (ga : Buf (Elt F) (a.view.loc (thr d L))) (gb : Buf (Elt F) (b.view.loc (thr d L)))
    (h : Lanes d L a b ga gb k20_t3_loop.trips) : Lanes d L a b ga gb 200 := trips3 ▸ h

/-- The write-out of a piece: the first 3200 elements of the flat staging array, which the 200 lane copies filled from
    row 0 of the staging array, which the fetch filled from piece `n` of row 20 of the transposed argument, land at
    piece `n` of the result, at the same positions of the row. -/
theorem out_written (a : Memref sig .scVector .vmem S8x3200 .f32) (b : Memref sig .scVector .vmem S25600 .f32) (n : ℕ)
    (ga : Buf (Elt F) (a.view.loc (thr d L))) (gb : Buf (Elt F) (b.view.loc (thr d L)))
    (f0 : Buf (Elt F) ((outM L n).view.loc (thr d L))) (w : S3200.Idx → Elt F .f32)
    (hw : ∀ y, w y = (stg b).view.read (Elt F) gb y) (hl : Lanes d L a b ga gb 200) (hr : InRow d L fx a ga n) (hv : valid L n) :
    ∀ i ∈ (outM L n).view.set, ((outM L n).view.writes (Elt F) f0 [⟨Rect.whole _, w⟩]) i = Cert.Spec.row 20 fx i := by
  intro i hi
  obtain ⟨y, -, rfl⟩ := Finset.mem_map.mp hi
  have hy : (y 0).val < 3200 := (y 0).isLt
  have hp : pos L n + (y 0).val < 1600000 := by unfold pos; omega
  have e1 : (outM L n).view.writes (Elt F) f0 [⟨Rect.whole _, w⟩] ((outM L n).view.emb y) = w y := by
    have h := View.read_writes_cons_emb (outM L n).view f0 (Rect.whole _) w [] y
    rw [Rect.emb_whole_apply] at h
    exact (cast_eq _ _).symm.trans ((View.read_apply _ _).symm.trans h)
  have e2 : (stg b).view.read (Elt F) gb y = b.view.read (Elt F) gb (ix1 (⟨(y 0).val, by omega⟩ : Fin 25600)) :=
    congrArg (b.view.read (Elt F) gb) (stg_emb y (by omega))
  have e3 : a.view.read (Elt F) ga (ix2 (0 : Fin 8) (⟨(y 0).val, hy⟩ : Fin 3200))
      = (inM L n).view.read (Elt F) fx (ix2 (0 : Fin 1) (⟨(y 0).val, hy⟩ : Fin 3200)) :=
    (congrArg (a.view.read (Elt F) ga) (row_emb ⟨(y 0).val, hy⟩).symm).trans (hr _)
  have e4 : (inM L n).view.read (Elt F) fx (ix2 (0 : Fin 1) (⟨(y 0).val, hy⟩ : Fin 3200))
      = fx (ix2 (20 : Fin 22) (⟨pos L n + (y 0).val, hp⟩ : Fin 1600000)) :=
    ((View.read_apply _ _).trans (cast_eq _ _)).trans (congrArg fx (in_emb L n ⟨(y 0).val, hy⟩ hp))
  have e5 : Cert.Spec.row 20 fx ((outM L n).view.emb y) = fx (ix2 (20 : Fin 22) (⟨pos L n + (y 0).val, hp⟩ : Fin 1600000)) :=
    (congrArg (Cert.Spec.row 20 fx) (out_emb L n y hp)).trans (Cert.Spec.row_apply 20 fx _)
  exact e1.trans ((hw y).trans (e2.trans ((hl _ hy (by omega)).trans (e3.trans (e4.trans e5.symm)))))

end Cert.Proof.TileBVal20

end
-- ==== Proof.TileB20.lean ====
/-
  One vector subcore's task of copy kernel 20 (counting from 0), run symbolically: the two fetch slots and two write-out slots
  between trips of the main loop (what each transfer in flight will hand back, and what the staging buffers hold), the
  invariant of the main loop and of the two lane-copy loops, and the task's run — from the tile's pieces of row 20 of
  the transposed argument and of the result to the same pieces with the result holding the row's elements.
-/
import proofs.«206869_g37898791420194_cont_8to1_b_558_20_alg».proof.Proof.TileB20Defs
import proofs.«206869_g37898791420194_cont_8to1_b_558_20_alg».proof.Proof.TileBVal20
noncomputable section

namespace Cert.Proof.TileB20

open Cert.Kernel Cert.Kernel.Gen Cert.Proof.TileBVal20
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 22) (Elt F) ℕ UU ℕ
local notation "xtW" => (Memref.whole Cert.Kernel.main_v0_scv : Memref Cert.Kernel.sig Kind.scVector Space.hbm Cert.Kernel.S22x1600000 EltTy.f32)
local notation "oW" => (Memref.whole Cert.Kernel.main_v21_scv : Memref Cert.Kernel.sig Kind.scVector Space.hbm Cert.Kernel.S1600000 EltTy.f32)
local notation "a4" => (Memref.whole Cert.Kernel.cc20_scratch0 : Memref Cert.Kernel.sig Kind.scVector Space.vmem Cert.Kernel.S8x3200 EltTy.f32)
local notation "a5" => (Memref.whole Cert.Kernel.cc20_scratch1 : Memref Cert.Kernel.sig Kind.scVector Space.vmem Cert.Kernel.S8x3200 EltTy.f32)
local notation "a6" => (Memref.whole Cert.Kernel.cc20_scratch2 : Memref Cert.Kernel.sig Kind.scVector Space.vmem Cert.Kernel.S25600 EltTy.f32)
local notation "a7" => (Memref.whole Cert.Kernel.cc20_scratch3 : Memref Cert.Kernel.sig Kind.scVector Space.vmem Cert.Kernel.S25600 EltTy.f32)

variable [FloatOps F]

section Tile

variable (d : Dev nD) (L : grid20.Coords)
variable (O : CellTallies nD τ sig (HIx 22)) (W : Waits sig (HIx 22))
variable (fx : Buf (Elt F) ((xtW).view.loc (thr d L)))

/-- Piece `n` of the result at its final contents. -/
abbrev oqPiece (n : ℕ) : sProp 𝕄 := (outM L n).view.loc (thr d L) ↦[(outM L n).view.set]{fullShare} (Cert.Spec.row 20 fx)
theorem oQ_pos {n : ℕ} (v : valid L n) : oQ d L fx n = oqPiece d L fx n := if_pos v
theorem oQ_neg {n : ℕ} (v : ¬ valid L n) : oQ d L fx n = iprop(emp) := if_neg v

/-- A fetch slot, remembering that the staging row it will hand back holds the piece. -/
def inSlotV (a : Memref sig .scVector .vmem S8x3200 .f32) (sm : DmaSem sig) (n : ℕ) : sProp 𝕄 :=
  if valid L n then
    iprop(∃ g, ⌜InRow d L fx a g n⌝ ∗ Transfers.Flight countersEmb (thr d L) (SemLoc.dma sm) (default : HIx 22) NN
      iprop((a.view.loc (thr d L) ↦{fullShare} g) ∗ xtPiece d L fx n))
  else iprop((∃ g, a.view.loc (thr d L) ↦{fullShare} g) ∗ semVal (thr d L, SemLoc.dma sm) 0)

/-- A write-out slot: the piece in flight will come back holding the row's elements. -/
def outSlotV (a : Memref sig .scVector .vmem S25600 .f32) (sm : DmaSem sig) (m : ℕ) : sProp 𝕄 :=
  if 2 ≤ m ∧ valid L (m - 2) then
    iprop(∃ g, Transfers.Flight countersEmb (thr d L) (SemLoc.dma sm) (default : HIx 22) NN
        iprop(oqPiece d L fx (m - 2) ∗ ((stg a).view.loc (thr d L) ↦[(stg a).view.set]{fullShare} g))
      ∗ (a.view.loc (thr d L) ↦[Finset.univ \ (stg a).view.set]{fullShare} g))
  else iprop((∃ g, a.view.loc (thr d L) ↦{fullShare} g) ∗ semVal (thr d L, SemLoc.dma sm) 0)

theorem inSlotV_pos {a : Memref sig .scVector .vmem S8x3200 .f32} {sm : DmaSem sig} {n : ℕ} (v : valid L n) :
    inSlotV d L fx a sm n = iprop(∃ g, ⌜InRow d L fx a g n⌝ ∗ Transfers.Flight countersEmb (thr d L) (SemLoc.dma sm) (default : HIx 22) NN
      iprop((a.view.loc (thr d L) ↦{fullShare} g) ∗ xtPiece d L fx n)) := by unfold inSlotV; rw [if_pos v]
theorem inSlotV_neg {a : Memref sig .scVector .vmem S8x3200 .f32} {sm : DmaSem sig} {n : ℕ} (v : ¬ valid L n) :
    inSlotV d L fx a sm n = iprop((∃ g, a.view.loc (thr d L) ↦{fullShare} g) ∗ semVal (thr d L, SemLoc.dma sm) 0) := by
  unfold inSlotV; rw [if_neg v]
theorem outSlotV_pos {a : Memref sig .scVector .vmem S25600 .f32} {sm : DmaSem sig} {m : ℕ} (h : 2 ≤ m ∧ valid L (m - 2)) :
    outSlotV d L fx a sm m = iprop(∃ g, Transfers.Flight countersEmb (thr d L) (SemLoc.dma sm) (default : HIx 22) NN
        iprop(oqPiece d L fx (m - 2) ∗ ((stg a).view.loc (thr d L) ↦[(stg a).view.set]{fullShare} g))
      ∗ (a.view.loc (thr d L) ↦[Finset.univ \ (stg a).view.set]{fullShare} g)) := by unfold outSlotV; rw [if_pos h]
theorem outSlotV_neg {a : Memref sig .scVector .vmem S25600 .f32} {sm : DmaSem sig} {m : ℕ} (h : ¬ (2 ≤ m ∧ valid L (m - 2))) :
    outSlotV d L fx a sm m = iprop((∃ g, a.view.loc (thr d L) ↦{fullShare} g) ∗ semVal (thr d L, SemLoc.dma sm) 0) := by
  unfold outSlotV; rw [if_neg h]

/-- A fetch just issued: the staging row will hold what the transfer reads, which is the piece. -/
theorem fl_inV {off : Fin 2 → ℕ} {n : ℕ} (h : off = ![20, pos L n]) (p : ∀ a, off a + S1x3200.size a ≤ S22x1600000.size a) (v : valid L n)
    (a : Memref sig .scVector .vmem S8x3200 .f32) (sm : DmaSem sig) :
    (iprop(∃ (gold : Buf (Elt F) (a.view.loc (thr d L))) (w : S1x3200.Idx → Elt F .f32),
        ⌜∀ y, w y = ((xtW).slice (Rect.unit (s := S22x1600000) off S1x3200.size p) (fun _ => rfl)).view.read (Elt F) fx y⌝
        ∗ Transfers.Flight countersEmb (thr d L) (SemLoc.dma sm) (default : HIx 22) NN
          iprop((a.view.loc (thr d L) ↦{fullShare} a.view.writes (Elt F) gold [⟨rowRect, w⟩])
            ∗ (((xtW).slice (Rect.unit (s := S22x1600000) off S1x3200.size p) (fun _ => rfl)).view.loc (thr d L)
                ↦[((xtW).slice (Rect.unit (s := S22x1600000) off S1x3200.size p) (fun _ => rfl)).view.set]{fullShare} fx))) : sProp 𝕄)
      ⊢ inSlotV d L fx a sm n := by
  subst h
  rw [inSlotV_pos d L fx v]
  iintro ⟨%gold, %w, %hw, H⟩
  iexists _
  isplitr
  · ipureintro; exact inRow_fetch d L fx a gold w n hw
  · iexact H

set_option maxHeartbeats 4000000 in
/-- A write-out just issued from a flat staging buffer whose first 3200 elements are the staging row, itself piece
    `n` of the argument row: the piece of the result will hold the row's elements. -/
theorem fl_outV {off : Fin 1 → ℕ} {n : ℕ} (h : off = ![pos L n]) (p : ∀ a, off a + S3200.size a ≤ S1600000.size a) (v : valid L n)
    (ar : Memref sig .scVector .vmem S8x3200 .f32) (a : Memref sig .scVector .vmem S25600 .f32) (sm : DmaSem sig)
    (f0 : Buf (Elt F) ((oW).view.loc (thr d L))) (ga : Buf (Elt F) (ar.view.loc (thr d L))) (gb : Buf (Elt F) (a.view.loc (thr d L)))
    (hl : Lanes d L ar a ga gb 200) (hr : InRow d L fx ar ga n) :
    (iprop(∃ (w : S3200.Idx → Elt F .f32),
        ⌜∀ y, w y = (stg a).view.read (Elt F) gb y⌝
        ∗ Transfers.Flight countersEmb (thr d L) (SemLoc.dma sm) (default : HIx 22) NN
          iprop((((oW).slice (Rect.unit (s := S1600000) off S3200.size p) (fun _ => rfl)).view.loc (thr d L)
                ↦[((oW).slice (Rect.unit (s := S1600000) off S3200.size p) (fun _ => rfl)).view.set]{fullShare}
                  (((oW).slice (Rect.unit (s := S1600000) off S3200.size p) (fun _ => rfl)).view.writes (Elt F) f0 [⟨Rect.whole _, w⟩]))
            ∗ ((stg a).view.loc (thr d L) ↦[(stg a).view.set]{fullShare} gb))
        ∗ (a.view.loc (thr d L) ↦[Finset.univ \ (stg a).view.set]{fullShare} gb)) : sProp 𝕄)
      ⊢ outSlotV d L fx a sm (n + 2) := by
  subst h
  rw [outSlotV_pos d L fx (m := n + 2) ⟨by omega, by simpa using v⟩]
  iintro ⟨%w, %hw, H, R⟩
  have hD : (iprop(((outM L n).view.loc (thr d L) ↦[(outM L n).view.set]{fullShare} ((outM L n).view.writes (Elt F) f0 [⟨Rect.whole _, w⟩]))
          ∗ ((stg a).view.loc (thr d L) ↦[(stg a).view.set]{fullShare} gb)) : sProp 𝕄)
      ⊢ iprop(oqPiece d L fx (n + 2 - 2) ∗ ((stg a).view.loc (thr d L) ↦[(stg a).view.set]{fullShare} gb)) := by
    rw [Nat.add_sub_cancel]
    have e : (((outM L n).view.loc (thr d L) ↦[(outM L n).view.set]{fullShare} ((outM L n).view.writes (Elt F) f0 [⟨Rect.whole _, w⟩])) : sProp 𝕄)
        = oqPiece d L fx n := pointsTo_congr (out_written d L fx ar a n ga gb f0 w hw hl hr v)
    iintro ⟨H1, H2⟩
    isplitl [H1]
    · iapply (Entails.of_eq e); iexact H1
    · iexact H2
  iexists gb
  isplitl [H]
  · iapply (Transfers.Flight_mono countersEmb (thr d L) hD); iexact H
  · iexact R

/-- The result pieces outside the slots before trip `t`: those already written hold the row, the others some contents. -/
def oMix (t n : ℕ) : sProp 𝕄 := if n + 2 < 2 * t then oQ d L fx n else oP (F := F) d L n
theorem oMix_lt {t n : ℕ} (h : n + 2 < 2 * t) : oMix d L fx t n = oQ d L fx n := if_pos h
theorem oMix_ge {t n : ℕ} (h : ¬ n + 2 < 2 * t) : oMix d L fx t n = oP (F := F) d L n := if_neg h
theorem oMix_core (k : ℕ) : bigSep (oCore k) (oMix d L fx k) = bigSep (oCore k) (oMix d L fx (k + 1)) :=
  bigSep_congr fun n hn => by
    have hn' : n + 2 ≠ 2 * k ∧ n + 2 ≠ 2 * k + 1 ∧ n ≠ 2 * k ∧ n ≠ 2 * k + 1 := by
      simp only [oCore, Finset.mem_filter, Finset.mem_range] at hn; exact hn.2
    by_cases h : n + 2 < 2 * k
    · rw [oMix_lt d L fx h, oMix_lt d L fx (by omega)]
    · rw [oMix_ge d L fx h, oMix_ge d L fx (by omega)]
theorem oMix_zero : bigSep (oSet 0) (oMix d L fx 0) = bigSep (Finset.range 18) (oP (F := F) d L) := by
  rw [oSet_zero]; exact bigSep_congr fun n _ => oMix_ge d L fx (by omega)
theorem oMix_end : bigSep (oSet 8) (oMix d L fx 8) = bigSep (oSet 8) (oQ d L fx) :=
  bigSep_congr fun n hn => by
    have hn' : n < 18 ∧ n + 2 ≠ 16 ∧ n + 2 ≠ 17 := by simpa only [oSet, Finset.mem_filter, Finset.mem_range] using hn
    by_cases h : n + 2 < 2 * 8
    · exact oMix_lt d L fx h
    · rw [oMix_ge d L fx h, oP_neg (F := F) d L (by unfold valid; omega), oQ_neg d L fx (by unfold valid; omega)]

/-- The lane-copy loops: before trip `j` the first 16·j elements of the flat staging buffer are the staging row's. -/
def laneV0 (g4 : Buf (Elt F) ((a4).view.loc (thr d L))) (j : ℕ) (_ : PUnit) : sProp 𝕄 :=
  iprop(((a4).view.loc (thr d L) ↦{fullShare} g4) ∗ (∃ g, ((a6).view.loc (thr d L) ↦{fullShare} g) ∗ ⌜Lanes d L a4 a6 g4 g j⌝))
def laneV1 (g5 : Buf (Elt F) ((a5).view.loc (thr d L))) (j : ℕ) (_ : PUnit) : sProp 𝕄 :=
  iprop(((a5).view.loc (thr d L) ↦{fullShare} g5) ∗ (∃ g, ((a7).view.loc (thr d L) ↦{fullShare} g) ∗ ⌜Lanes d L a5 a7 g5 g j⌝))

def invV (t : ℕ) (_ : PUnit) : sProp 𝕄 :=
  iprop(Transfers.MayWaits (thr d L) (none : HIx 22) O
    ∗ (∃ W', ⌜∀ p ∈ W', p ∈ W ∨ p.2 = none⌝ ∗ owes (thr d L) O W')
    ∗ bigSep (xSet t) (xP d L fx) ∗ bigSep (oSet t) (oMix d L fx t)
    ∗ inSlotV d L fx a4 cc20_scratch4.sem (2 * t) ∗ outSlotV d L fx a6 cc20_scratch6.sem (2 * t)
    ∗ inSlotV d L fx a5 cc20_scratch5.sem (2 * t + 1) ∗ outSlotV d L fx a7 cc20_scratch7.sem (2 * t + 1))

/-- After the last trip nothing of the argument row is in a slot: the tile holds all its pieces. -/
theorem xRange_end : bigSep (xSet 8) (xP d L fx) ⊢ bigSep (Finset.range 18) (xP d L fx) := by
  rw [two_out (s := Finset.range 18) (a := 16) (b := 17) (by decide) (by decide) (by decide),
    show ((Finset.range 18).erase 16).erase 17 = xSet 8 by decide]
  iintro H
  isplitr; · iapply (Entails.of_eq (xP_neg d L fx (n := 16) (by unfold valid; omega)).symm); iempintro
  isplitr; · iapply (Entails.of_eq (xP_neg d L fx (n := 17) (by unfold valid; omega)).symm); iempintro
  iexact H
omit [FloatOps F] in
theorem oRange_end (Φ : ℕ → sProp 𝕄) : bigSep (Finset.range 18) Φ = iprop(Φ 14 ∗ Φ 15 ∗ bigSep (oSet 8) Φ) := by
  rw [two_out (s := Finset.range 18) (a := 14) (b := 15) (by decide) (by decide) (by decide),
    show ((Finset.range 18).erase 14).erase 15 = oSet 8 by decide]

/-- What the run starts from and ends with, beside an untouched rest `R`. -/
def runPre (R : sProp 𝕄) : sProp 𝕄 :=
    iprop(Transfers.MayWaits (thr d L) (none : HIx 22) O ∗ owes (thr d L) O W
        ∗ bigSep (Finset.range 18) (xP d L fx) ∗ bigSep (Finset.range 18) (oP (F := F) d L)
        ∗ (∃ g, (a4).view.loc (thr d L) ↦{fullShare} g) ∗ (∃ g, (a5).view.loc (thr d L) ↦{fullShare} g)
        ∗ (∃ g, (a6).view.loc (thr d L) ↦{fullShare} g) ∗ (∃ g, (a7).view.loc (thr d L) ↦{fullShare} g)
        ∗ semVal (thr d L, SemLoc.dma cc20_scratch4.sem) 0 ∗ semVal (thr d L, SemLoc.dma cc20_scratch5.sem) 0
        ∗ semVal (thr d L, SemLoc.dma cc20_scratch6.sem) 0 ∗ semVal (thr d L, SemLoc.dma cc20_scratch7.sem) 0 ∗ R)
def runPost (R : sProp 𝕄) : sProp 𝕄 :=
    iprop(bigSep (Finset.range 18) (xP d L fx) ∗ bigSep (Finset.range 18) (oQ d L fx)
            ∗ (∃ g, (a4).view.loc (thr d L) ↦{fullShare} g) ∗ (∃ g, (a5).view.loc (thr d L) ↦{fullShare} g)
            ∗ (∃ g, (a6).view.loc (thr d L) ↦{fullShare} g) ∗ (∃ g, (a7).view.loc (thr d L) ↦{fullShare} g)
            ∗ semVal (thr d L, SemLoc.dma cc20_scratch4.sem) 0 ∗ semVal (thr d L, SemLoc.dma cc20_scratch5.sem) 0
            ∗ semVal (thr d L, SemLoc.dma cc20_scratch6.sem) 0 ∗ semVal (thr d L, SemLoc.dma cc20_scratch7.sem) 0
            ∗ (∃ W', ⌜∀ p ∈ W', p ∈ W ∨ p.2 = none⌝ ∗ owes (thr d L) O W') ∗ R)

set_option maxHeartbeats 16000000 in
/-- The task's run: from its pieces of the argument row and of the result, the four staging buffers and the four
    semaphores at zero, to the same with every piece of the result holding the row's elements. -/
theorem tile_run (R : sProp 𝕄) :
    runPre d L O W fx R
      ⊢ wp frame (wpE (defs₀ (F := F)) 𝒱₀ (thr d L) none) Set.univ
          (cc20_sc_group L xtW (Memref.isWhole_whole _) oW (Memref.isWhole_whole _) a4 (Memref.isWhole_whole _) a5 (Memref.isWhole_whole _)
            a6 (Memref.isWhole_whole _) a7 (Memref.isWhole_whole _) cc20_scratch4 cc20_scratch5 cc20_scratch6 cc20_scratch7)
          fun _ => runPost d L O W fx R := by
  unfold runPre runPost
  have v0 : valid L 0 := Or.inl (by omega)
  have v1 : valid L 1 := Or.inl (by omega)
  have k20_h7 : k20_cond7 L = 1#1 := cond7_iff L
  iintro ⟨#Hmw, HO, HX, HOut, ⟨%g4, H4⟩, ⟨%g5, H5⟩, ⟨%g6, H6⟩, ⟨%g7, H7⟩, Hs8, Hs9, Hs10, Hs11, HR⟩
  ihave HX := (Entails.of_eq (xRange_split d L fx v0 v1)) $$ HX
  icases HX with ⟨X0, X1, HX⟩
  ihave X0 := (Entails.of_eq (in_congr d L (off_in0 L v0).symm (in_inb L _) (k20_off1_inb L 0) fx)) $$ X0
  ihave X1 := (Entails.of_eq (in_congr d L (off_in1 L v1).symm (in_inb L _) (k20_off1_inb L 1) fx)) $$ X1
  sl_unfold [cc20_sc_group]
  sl_exec
  ihave S8 := (fl_inV d L fx (off_in0 L v0) (k20_off1_inb L 0) v0 a4 cc20_scratch4.sem) $$ [Hs8]
  · iexists _, _
    isplitr
    rotate_left
    · iexact Hs8
    ipureintro; intro y; rfl
  ihave S9 := (fl_inV d L fx (off_in1 L v1) (k20_off1_inb L 1) v1 a5 cc20_scratch5.sem) $$ [Hs9]
  · iexists _, _
    isplitr
    rotate_left
    · iexact Hs9
    ipureintro; intro y; rfl
  sl_for (invV d L O W fx) $$ [HO HX HOut S8 S9 H6 H7 Hs10 Hs11]
  case region =>
    intro (k : Fin k20_t1_loop.trips) acc
    have hk : k.val < 8 := Nat.lt_of_lt_of_eq k.isLt trips1
    unfold invV
    iintro ⟨#Hmw, ⟨%W', %hW', HO⟩, HX, HOut, S8, S10, S9, S11⟩
    by_cases hk1 : 1 ≤ k.val
    · by_cases v3 : valid L (2 * k.val + 3)
      · -- the generic trip: both drains, both pieces worked, both next fetches issued
        have hk6 : k.val ≤ 6 := by unfold valid at v3; omega
        have k20_h1 : k20_cond1 k = 1#1 := (cond1_iff k).mpr (by omega)
        have k20_h2 : k20_cond2 L k = 1#1 := cond2_iff L k
        have k20_h3 : k20_cond3 L k = 1#1 := (cond3_iff L k).mpr (by omega)
        have k20_h4 : k20_cond4 k = 1#1 := (cond4_iff k).mpr (by omega)
        have k20_h5 : k20_cond5 L k = 1#1 := (cond5_iff L k).mpr (by first | (unfold valid big at *; omega) | (unfold big at *; omega) | omega)
        have k20_h6 : k20_cond6 L k = 1#1 := (cond6_iff L k).mpr (by first | (unfold valid big at *; omega) | (unfold big at *; omega) | omega)
        have v0 : valid L (2 * k.val) := by unfold valid big at *; omega
        have v1 : valid L (2 * k.val + 1) := by unfold valid big at *; omega
        have v2 : valid L (2 * k.val + 2) := by unfold valid big at *; omega
        have v3' : valid L (2 * k.val + 3) := by unfold valid big at *; omega
        have hm0 : 2 ≤ 2 * k.val ∧ valid L (2 * k.val - 2) := ⟨by omega, by unfold valid big at *; omega⟩
        have hm1 : 2 ≤ 2 * k.val + 1 ∧ valid L (2 * k.val + 1 - 2) := ⟨by omega, by unfold valid big at *; omega⟩
        ihave S8 := (Entails.of_eq (inSlotV_pos d L fx v0)) $$ S8
        icases S8 with ⟨%g4, %hin4, F8⟩
        ihave S9 := (Entails.of_eq (inSlotV_pos d L fx v1)) $$ S9
        icases S9 with ⟨%g5, %hin5, F9⟩
        ihave S10 := (Entails.of_eq (outSlotV_pos d L fx hm0)) $$ S10
        icases S10 with ⟨%g6, F10, R6⟩
        ihave S11 := (Entails.of_eq (outSlotV_pos d L fx hm1)) $$ S11
        icases S11 with ⟨%g7, F11, R7⟩
        ihave HX := (Entails.of_eq (xSet_out (xP d L fx) k.val hk)) $$ HX
        icases HX with ⟨X2, X3, HX⟩
        ihave X2 := (Entails.of_eq (xP_pos d L fx v2)) $$ X2
        ihave X2 := (Entails.of_eq (in_congr d L (off_6 L k v2).symm (in_inb L _) (k20_off6_inb L k k20_h3) fx)) $$ X2
        ihave X3 := (Entails.of_eq (xP_pos d L fx v3')) $$ X3
        ihave X3 := (Entails.of_eq (in_congr d L (off_11 L k v3').symm (in_inb L _) (k20_off11_inb L k k20_h6) fx)) $$ X3
        ihave HOut := (Entails.of_eq (oSet_out (oMix d L fx k.val) k.val hk)) $$ HOut
        icases HOut with ⟨Y0, Y1, HOut⟩
        ihave Y0 := (Entails.of_eq ((oMix_ge d L fx (t := k.val) (n := 2 * k.val) (by omega)).trans (oP_pos (F := F) d L v0))) $$ Y0
        icases Y0 with ⟨%f0, Y0⟩
        ihave Y0 := (Entails.of_eq (out_congr d L (off_5 L k v0).symm (out_inb L _) (k20_off5_inb L k k20_h2) f0)) $$ Y0
        ihave Y1 := (Entails.of_eq ((oMix_ge d L fx (t := k.val) (n := 2 * k.val + 1) (by omega)).trans (oP_pos (F := F) d L v1))) $$ Y1
        icases Y1 with ⟨%f1, Y1⟩
        ihave Y1 := (Entails.of_eq (out_congr d L (off_10 L k v1).symm (out_inb L _) (k20_off10_inb L k k20_h5) f1)) $$ Y1
        sl_exec
        sl_for (laneV0 d L g4) $$ [F8_dst R6]
        case region =>
          intro (j : Fin k20_t2_loop.trips) _
          unfold laneV0
          iintro ⟨HA, %g, HB, %hl⟩
          sl_exec
          sl_step
          isplitl [HA]; · iexact HA
          iexists _; isplitl [HB]; · iexact HB
          ipureintro; exact lanes_step d L a4 a6 g4 g j _ _ hl
        · unfold laneV0
          isplitl [F8_dst]; · iexact F8_dst
          iexists _; isplitl [R6]; · iexact R6
          ipureintro; exact lanes_zero d L a4 a6 g4 _
        iintro %_ HI
        unfold laneV0
        icases HI with ⟨H4, %g6', H6, %hl6⟩
        have hl6 : Lanes d L a4 a6 g4 g6' 200 := Eq.mp (congrArg (Lanes d L a4 a6 g4 g6') trips2) hl6
        sl_exec
        sl_for (laneV1 d L g5) $$ [F9_dst R7]
        case region =>
          intro (j : Fin k20_t3_loop.trips) _
          unfold laneV1
          iintro ⟨HA, %g, HB, %hl⟩
          sl_exec
          sl_step
          isplitl [HA]; · iexact HA
          iexists _; isplitl [HB]; · iexact HB
          ipureintro; exact lanes_step' d L a5 a7 g5 g j _ _ hl
        · unfold laneV1
          isplitl [F9_dst]; · iexact F9_dst
          iexists _; isplitl [R7]; · iexact R7
          ipureintro; exact lanes_zero d L a5 a7 g5 _
        iintro %_ HI
        unfold laneV1
        icases HI with ⟨H5, %g7', H7, %hl7⟩
        have hl7 : Lanes d L a5 a7 g5 g7' 200 := Eq.mp (congrArg (Lanes d L a5 a7 g5 g7') trips3) hl7
        sl_exec
        sl_step
        isplitr; · iexact Hmw
        isplitl [HO]
        · iexists _; isplitr
          rotate_left
          · iexact HO
          ipureintro; intro p hp
          rcases Finset.mem_insert.mp hp with rfl | hp
          · exact .inr rfl
          rcases Finset.mem_insert.mp hp with rfl | hp
          · exact .inr rfl
          rcases Finset.mem_insert.mp hp with rfl | hp
          · exact .inr rfl
          rcases Finset.mem_insert.mp hp with rfl | hp
          · exact .inr rfl
          exact hW' p hp
        isplitl [HX F8_src F9_src]
        · iapply (Entails.of_eq (xSet_in (xP d L fx) k.val hk).symm)
          isplitl [F8_src]; · iapply (Entails.of_eq (xP_pos d L fx v0).symm); iexact F8_src
          isplitl [F9_src]; · iapply (Entails.of_eq (xP_pos d L fx v1).symm); iexact F9_src
          iexact HX
        isplitl [HOut F10_dst F11_dst]
        · iapply (Entails.of_eq (oSet_in (oMix d L fx (k.val + 1)) k.val hk (by omega)).symm)
          isplitl [F10_dst]; · iapply (Entails.of_eq ((oMix_lt d L fx (t := k.val + 1) (n := 2 * k.val - 2) (by omega)).trans (oQ_pos d L fx hm0.2)).symm); iexact F10_dst
          isplitl [F11_dst]
          · iapply (Entails.of_eq ((oMix_lt d L fx (t := k.val + 1) (n := 2 * k.val - 1) (by omega)).trans (oQ_pos d L fx (n := 2 * k.val - 1) (by have := hm1.2; rwa [show 2 * k.val + 1 - 2 = 2 * k.val - 1 by omega] at this))).symm)
            iapply (Entails.of_eq (congrArg (oqPiece d L fx) (show 2 * k.val + 1 - 2 = 2 * k.val - 1 by omega))); iexact F11_dst
          iapply (Entails.of_eq (oMix_core d L fx k.val)); iexact HOut
        isplitl [F8]
        · iapply (Entails.of_eq (congrArg (inSlotV d L fx a4 cc20_scratch4.sem) (show 2 * k.val + 2 = 2 * (k.val + 1) by ring)))
          iapply (fl_inV d L fx (off_6 L k v2) (k20_off6_inb L k k20_h3) v2 a4 cc20_scratch4.sem); iexists _, _
          isplitr
          rotate_left
          · iexact F8
          ipureintro; intro y; rfl
        isplitl [F10 H6]
        · iapply (Entails.of_eq (congrArg (outSlotV d L fx a6 cc20_scratch6.sem) (show 2 * k.val + 2 = 2 * (k.val + 1) by ring)))
          iapply (fl_outV d L fx (off_5 L k v0) (k20_off5_inb L k k20_h2) v0 a4 a6 cc20_scratch6.sem f0 g4 g6' hl6 hin4); iexists _
          isplitr
          rotate_left
          · isplitl [F10]; · iexact F10
            iexact H6
          ipureintro; intro y; rfl
        isplitl [F9]
        · iapply (Entails.of_eq (congrArg (inSlotV d L fx a5 cc20_scratch5.sem) (show 2 * k.val + 3 = 2 * (k.val + 1) + 1 by ring)))
          iapply (fl_inV d L fx (off_11 L k v3') (k20_off11_inb L k k20_h6) v3' a5 cc20_scratch5.sem); iexists _, _
          isplitr
          rotate_left
          · iexact F9
          ipureintro; intro y; rfl
        · iapply (Entails.of_eq (congrArg (outSlotV d L fx a7 cc20_scratch7.sem) (show 2 * k.val + 1 + 2 = 2 * (k.val + 1) + 1 by ring)))
          iapply (fl_outV d L fx (off_10 L k v1) (k20_off10_inb L k k20_h5) v1 a5 a7 cc20_scratch7.sem f1 g5 g7' hl7 hin5); iexists _
          isplitr
          rotate_left
          · isplitl [F11]; · iexact F11
            iexact H7
          ipureintro; intro y; rfl
      · by_cases h6 : k.val = 6
        · have hb : ¬ big L := fun hb => v3 (Or.inr ⟨by omega, hb⟩)
          -- trip 6 of a tile with fifteen pieces: no sixteenth piece to fetch
          have k20_h1 : k20_cond1 k = 1#1 := (cond1_iff k).mpr (by omega)
          have k20_h2 : k20_cond2 L k = 1#1 := cond2_iff L k
          have k20_h3 : k20_cond3 L k = 1#1 := (cond3_iff L k).mpr (by omega)
          have k20_h4 : k20_cond4 k = 1#1 := (cond4_iff k).mpr (by omega)
          have k20_h5 : k20_cond5 L k = 1#1 := (cond5_iff L k).mpr (by first | (unfold valid big at *; omega) | (unfold big at *; omega) | omega)
          have k20_h6 : ¬ k20_cond6 L k = 1#1 := fun h => absurd ((cond6_iff L k).mp h) (by first | (unfold valid big at *; omega) | (unfold big at *; omega) | omega)
          have v0 : valid L (2 * k.val) := by unfold valid big at *; omega
          have v1 : valid L (2 * k.val + 1) := by unfold valid big at *; omega
          have v2 : valid L (2 * k.val + 2) := by unfold valid big at *; omega
          have v3' : ¬ valid L (2 * k.val + 3) := by unfold valid big at *; omega
          have hm0 : 2 ≤ 2 * k.val ∧ valid L (2 * k.val - 2) := ⟨by omega, by unfold valid big at *; omega⟩
          have hm1 : 2 ≤ 2 * k.val + 1 ∧ valid L (2 * k.val + 1 - 2) := ⟨by omega, by unfold valid big at *; omega⟩
          ihave S8 := (Entails.of_eq (inSlotV_pos d L fx v0)) $$ S8
          icases S8 with ⟨%g4, %hin4, F8⟩
          ihave S9 := (Entails.of_eq (inSlotV_pos d L fx v1)) $$ S9
          icases S9 with ⟨%g5, %hin5, F9⟩
          ihave S10 := (Entails.of_eq (outSlotV_pos d L fx hm0)) $$ S10
          icases S10 with ⟨%g6, F10, R6⟩
          ihave S11 := (Entails.of_eq (outSlotV_pos d L fx hm1)) $$ S11
          icases S11 with ⟨%g7, F11, R7⟩
          ihave HX := (Entails.of_eq (xSet_out (xP d L fx) k.val hk)) $$ HX
          icases HX with ⟨X2, -, HX⟩
          ihave X2 := (Entails.of_eq (xP_pos d L fx v2)) $$ X2
          ihave X2 := (Entails.of_eq (in_congr d L (off_6 L k v2).symm (in_inb L _) (k20_off6_inb L k k20_h3) fx)) $$ X2
          ihave HOut := (Entails.of_eq (oSet_out (oMix d L fx k.val) k.val hk)) $$ HOut
          icases HOut with ⟨Y0, Y1, HOut⟩
          ihave Y0 := (Entails.of_eq ((oMix_ge d L fx (t := k.val) (n := 2 * k.val) (by omega)).trans (oP_pos (F := F) d L v0))) $$ Y0
          icases Y0 with ⟨%f0, Y0⟩
          ihave Y0 := (Entails.of_eq (out_congr d L (off_5 L k v0).symm (out_inb L _) (k20_off5_inb L k k20_h2) f0)) $$ Y0
          ihave Y1 := (Entails.of_eq ((oMix_ge d L fx (t := k.val) (n := 2 * k.val + 1) (by omega)).trans (oP_pos (F := F) d L v1))) $$ Y1
          icases Y1 with ⟨%f1, Y1⟩
          ihave Y1 := (Entails.of_eq (out_congr d L (off_10 L k v1).symm (out_inb L _) (k20_off10_inb L k k20_h5) f1)) $$ Y1
          sl_exec
          sl_for (laneV0 d L g4) $$ [F8_dst R6]
          case region =>
            intro (j : Fin k20_t2_loop.trips) _
            unfold laneV0
            iintro ⟨HA, %g, HB, %hl⟩
            sl_exec
            sl_step
            isplitl [HA]; · iexact HA
            iexists _; isplitl [HB]; · iexact HB
            ipureintro; exact lanes_step d L a4 a6 g4 g j _ _ hl
          · unfold laneV0
            isplitl [F8_dst]; · iexact F8_dst
            iexists _; isplitl [R6]; · iexact R6
            ipureintro; exact lanes_zero d L a4 a6 g4 _
          iintro %_ HI
          unfold laneV0
          icases HI with ⟨H4, %g6', H6, %hl6⟩
          have hl6 : Lanes d L a4 a6 g4 g6' 200 := Eq.mp (congrArg (Lanes d L a4 a6 g4 g6') trips2) hl6
          sl_exec
          sl_for (laneV1 d L g5) $$ [F9_dst R7]
          case region =>
            intro (j : Fin k20_t3_loop.trips) _
            unfold laneV1
            iintro ⟨HA, %g, HB, %hl⟩
            sl_exec
            sl_step
            isplitl [HA]; · iexact HA
            iexists _; isplitl [HB]; · iexact HB
            ipureintro; exact lanes_step' d L a5 a7 g5 g j _ _ hl
          · unfold laneV1
            isplitl [F9_dst]; · iexact F9_dst
            iexists _; isplitl [R7]; · iexact R7
            ipureintro; exact lanes_zero d L a5 a7 g5 _
          iintro %_ HI
          unfold laneV1
          icases HI with ⟨H5, %g7', H7, %hl7⟩
          have hl7 : Lanes d L a5 a7 g5 g7' 200 := Eq.mp (congrArg (Lanes d L a5 a7 g5 g7') trips3) hl7
          sl_exec
          sl_step
          isplitr; · iexact Hmw
          isplitl [HO]
          · iexists _; isplitr
            rotate_left
            · iexact HO
            ipureintro; intro p hp
            rcases Finset.mem_insert.mp hp with rfl | hp
            · exact .inr rfl
            rcases Finset.mem_insert.mp hp with rfl | hp
            · exact .inr rfl
            rcases Finset.mem_insert.mp hp with rfl | hp
            · exact .inr rfl
            rcases Finset.mem_insert.mp hp with rfl | hp
            · exact .inr rfl
            exact hW' p hp
          isplitl [HX F8_src F9_src]
          · iapply (Entails.of_eq (xSet_in (xP d L fx) k.val hk).symm)
            isplitl [F8_src]; · iapply (Entails.of_eq (xP_pos d L fx v0).symm); iexact F8_src
            isplitl [F9_src]; · iapply (Entails.of_eq (xP_pos d L fx v1).symm); iexact F9_src
            iexact HX
          isplitl [HOut F10_dst F11_dst]
          · iapply (Entails.of_eq (oSet_in (oMix d L fx (k.val + 1)) k.val hk (by omega)).symm)
            isplitl [F10_dst]; · iapply (Entails.of_eq ((oMix_lt d L fx (t := k.val + 1) (n := 2 * k.val - 2) (by omega)).trans (oQ_pos d L fx hm0.2)).symm); iexact F10_dst
            isplitl [F11_dst]
            · iapply (Entails.of_eq ((oMix_lt d L fx (t := k.val + 1) (n := 2 * k.val - 1) (by omega)).trans (oQ_pos d L fx (n := 2 * k.val - 1) (by have := hm1.2; rwa [show 2 * k.val + 1 - 2 = 2 * k.val - 1 by omega] at this))).symm)
              iapply (Entails.of_eq (congrArg (oqPiece d L fx) (show 2 * k.val + 1 - 2 = 2 * k.val - 1 by omega))); iexact F11_dst
            iapply (Entails.of_eq (oMix_core d L fx k.val)); iexact HOut
          isplitl [F8]
          · iapply (Entails.of_eq (congrArg (inSlotV d L fx a4 cc20_scratch4.sem) (show 2 * k.val + 2 = 2 * (k.val + 1) by ring)))
            iapply (fl_inV d L fx (off_6 L k v2) (k20_off6_inb L k k20_h3) v2 a4 cc20_scratch4.sem); iexists _, _
            isplitr
            rotate_left
            · iexact F8
            ipureintro; intro y; rfl
          isplitl [F10 H6]
          · iapply (Entails.of_eq (congrArg (outSlotV d L fx a6 cc20_scratch6.sem) (show 2 * k.val + 2 = 2 * (k.val + 1) by ring)))
            iapply (fl_outV d L fx (off_5 L k v0) (k20_off5_inb L k k20_h2) v0 a4 a6 cc20_scratch6.sem f0 g4 g6' hl6 hin4); iexists _
            isplitr
            rotate_left
            · isplitl [F10]; · iexact F10
              iexact H6
            ipureintro; intro y; rfl
          isplitl [H5 F9]
          · iapply (Entails.of_eq (congrArg (inSlotV d L fx a5 cc20_scratch5.sem) (show 2 * k.val + 3 = 2 * (k.val + 1) + 1 by ring)))
            iapply (Entails.of_eq (inSlotV_neg d L fx v3').symm)
            isplitl [H5]; · iexists _; iexact H5
            iexact F9
          · iapply (Entails.of_eq (congrArg (outSlotV d L fx a7 cc20_scratch7.sem) (show 2 * k.val + 1 + 2 = 2 * (k.val + 1) + 1 by ring)))
            iapply (fl_outV d L fx (off_10 L k v1) (k20_off10_inb L k k20_h5) v1 a5 a7 cc20_scratch7.sem f1 g5 g7' hl7 hin5); iexists _
            isplitr
            rotate_left
            · isplitl [F11]; · iexact F11
              iexact H7
            ipureintro; intro y; rfl
        · have h7 : k.val = 7 := by unfold valid at v3; omega
          by_cases hb : big L
          · -- the last trip of a tile with sixteen pieces: nothing more to fetch
            have k20_h1 : k20_cond1 k = 1#1 := (cond1_iff k).mpr (by omega)
            have k20_h2 : k20_cond2 L k = 1#1 := cond2_iff L k
            have k20_h3 : ¬ k20_cond3 L k = 1#1 := fun h => absurd ((cond3_iff L k).mp h) (by omega)
            have k20_h4 : k20_cond4 k = 1#1 := (cond4_iff k).mpr (by omega)
            have k20_h5 : k20_cond5 L k = 1#1 := (cond5_iff L k).mpr (by first | (unfold valid big at *; omega) | (unfold big at *; omega) | omega)
            have k20_h6 : ¬ k20_cond6 L k = 1#1 := fun h => absurd ((cond6_iff L k).mp h) (by first | (unfold valid big at *; omega) | (unfold big at *; omega) | omega)
            have v0 : valid L (2 * k.val) := by unfold valid big at *; omega
            have v1 : valid L (2 * k.val + 1) := by unfold valid big at *; omega
            have v2 : ¬ valid L (2 * k.val + 2) := by unfold valid big at *; omega
            have v3' : ¬ valid L (2 * k.val + 3) := by unfold valid big at *; omega
            have hm0 : 2 ≤ 2 * k.val ∧ valid L (2 * k.val - 2) := ⟨by omega, by unfold valid big at *; omega⟩
            have hm1 : 2 ≤ 2 * k.val + 1 ∧ valid L (2 * k.val + 1 - 2) := ⟨by omega, by unfold valid big at *; omega⟩
            ihave S8 := (Entails.of_eq (inSlotV_pos d L fx v0)) $$ S8
            icases S8 with ⟨%g4, %hin4, F8⟩
            ihave S9 := (Entails.of_eq (inSlotV_pos d L fx v1)) $$ S9
            icases S9 with ⟨%g5, %hin5, F9⟩
            ihave S10 := (Entails.of_eq (outSlotV_pos d L fx hm0)) $$ S10
            icases S10 with ⟨%g6, F10, R6⟩
            ihave S11 := (Entails.of_eq (outSlotV_pos d L fx hm1)) $$ S11
            icases S11 with ⟨%g7, F11, R7⟩
            ihave HX := (Entails.of_eq (xSet_out (xP d L fx) k.val hk)) $$ HX
            icases HX with ⟨-, -, HX⟩
            ihave HOut := (Entails.of_eq (oSet_out (oMix d L fx k.val) k.val hk)) $$ HOut
            icases HOut with ⟨Y0, Y1, HOut⟩
            ihave Y0 := (Entails.of_eq ((oMix_ge d L fx (t := k.val) (n := 2 * k.val) (by omega)).trans (oP_pos (F := F) d L v0))) $$ Y0
            icases Y0 with ⟨%f0, Y0⟩
            ihave Y0 := (Entails.of_eq (out_congr d L (off_5 L k v0).symm (out_inb L _) (k20_off5_inb L k k20_h2) f0)) $$ Y0
            ihave Y1 := (Entails.of_eq ((oMix_ge d L fx (t := k.val) (n := 2 * k.val + 1) (by omega)).trans (oP_pos (F := F) d L v1))) $$ Y1
            icases Y1 with ⟨%f1, Y1⟩
            ihave Y1 := (Entails.of_eq (out_congr d L (off_10 L k v1).symm (out_inb L _) (k20_off10_inb L k k20_h5) f1)) $$ Y1
            sl_exec
            sl_for (laneV0 d L g4) $$ [F8_dst R6]
            case region =>
              intro (j : Fin k20_t2_loop.trips) _
              unfold laneV0
              iintro ⟨HA, %g, HB, %hl⟩
              sl_exec
              sl_step
              isplitl [HA]; · iexact HA
              iexists _; isplitl [HB]; · iexact HB
              ipureintro; exact lanes_step d L a4 a6 g4 g j _ _ hl
            · unfold laneV0
              isplitl [F8_dst]; · iexact F8_dst
              iexists _; isplitl [R6]; · iexact R6
              ipureintro; exact lanes_zero d L a4 a6 g4 _
            iintro %_ HI
            unfold laneV0
            icases HI with ⟨H4, %g6', H6, %hl6⟩
            have hl6 : Lanes d L a4 a6 g4 g6' 200 := Eq.mp (congrArg (Lanes d L a4 a6 g4 g6') trips2) hl6
            sl_exec
            sl_for (laneV1 d L g5) $$ [F9_dst R7]
            case region =>
              intro (j : Fin k20_t3_loop.trips) _
              unfold laneV1
              iintro ⟨HA, %g, HB, %hl⟩
              sl_exec
              sl_step
              isplitl [HA]; · iexact HA
              iexists _; isplitl [HB]; · iexact HB
              ipureintro; exact lanes_step' d L a5 a7 g5 g j _ _ hl
            · unfold laneV1
              isplitl [F9_dst]; · iexact F9_dst
              iexists _; isplitl [R7]; · iexact R7
              ipureintro; exact lanes_zero d L a5 a7 g5 _
            iintro %_ HI
            unfold laneV1
            icases HI with ⟨H5, %g7', H7, %hl7⟩
            have hl7 : Lanes d L a5 a7 g5 g7' 200 := Eq.mp (congrArg (Lanes d L a5 a7 g5 g7') trips3) hl7
            sl_exec
            sl_step
            isplitr; · iexact Hmw
            isplitl [HO]
            · iexists _; isplitr
              rotate_left
              · iexact HO
              ipureintro; intro p hp
              rcases Finset.mem_insert.mp hp with rfl | hp
              · exact .inr rfl
              rcases Finset.mem_insert.mp hp with rfl | hp
              · exact .inr rfl
              rcases Finset.mem_insert.mp hp with rfl | hp
              · exact .inr rfl
              rcases Finset.mem_insert.mp hp with rfl | hp
              · exact .inr rfl
              exact hW' p hp
            isplitl [HX F8_src F9_src]
            · iapply (Entails.of_eq (xSet_in (xP d L fx) k.val hk).symm)
              isplitl [F8_src]; · iapply (Entails.of_eq (xP_pos d L fx v0).symm); iexact F8_src
              isplitl [F9_src]; · iapply (Entails.of_eq (xP_pos d L fx v1).symm); iexact F9_src
              iexact HX
            isplitl [HOut F10_dst F11_dst]
            · iapply (Entails.of_eq (oSet_in (oMix d L fx (k.val + 1)) k.val hk (by omega)).symm)
              isplitl [F10_dst]; · iapply (Entails.of_eq ((oMix_lt d L fx (t := k.val + 1) (n := 2 * k.val - 2) (by omega)).trans (oQ_pos d L fx hm0.2)).symm); iexact F10_dst
              isplitl [F11_dst]
              · iapply (Entails.of_eq ((oMix_lt d L fx (t := k.val + 1) (n := 2 * k.val - 1) (by omega)).trans (oQ_pos d L fx (n := 2 * k.val - 1) (by have := hm1.2; rwa [show 2 * k.val + 1 - 2 = 2 * k.val - 1 by omega] at this))).symm)
                iapply (Entails.of_eq (congrArg (oqPiece d L fx) (show 2 * k.val + 1 - 2 = 2 * k.val - 1 by omega))); iexact F11_dst
              iapply (Entails.of_eq (oMix_core d L fx k.val)); iexact HOut
            isplitl [H4 F8]
            · iapply (Entails.of_eq (congrArg (inSlotV d L fx a4 cc20_scratch4.sem) (show 2 * k.val + 2 = 2 * (k.val + 1) by ring)))
              iapply (Entails.of_eq (inSlotV_neg d L fx v2).symm)
              isplitl [H4]; · iexists _; iexact H4
              iexact F8
            isplitl [F10 H6]
            · iapply (Entails.of_eq (congrArg (outSlotV d L fx a6 cc20_scratch6.sem) (show 2 * k.val + 2 = 2 * (k.val + 1) by ring)))
              iapply (fl_outV d L fx (off_5 L k v0) (k20_off5_inb L k k20_h2) v0 a4 a6 cc20_scratch6.sem f0 g4 g6' hl6 hin4); iexists _
              isplitr
              rotate_left
              · isplitl [F10]; · iexact F10
                iexact H6
              ipureintro; intro y; rfl
            isplitl [H5 F9]
            · iapply (Entails.of_eq (congrArg (inSlotV d L fx a5 cc20_scratch5.sem) (show 2 * k.val + 3 = 2 * (k.val + 1) + 1 by ring)))
              iapply (Entails.of_eq (inSlotV_neg d L fx v3').symm)
              isplitl [H5]; · iexists _; iexact H5
              iexact F9
            · iapply (Entails.of_eq (congrArg (outSlotV d L fx a7 cc20_scratch7.sem) (show 2 * k.val + 1 + 2 = 2 * (k.val + 1) + 1 by ring)))
              iapply (fl_outV d L fx (off_10 L k v1) (k20_off10_inb L k k20_h5) v1 a5 a7 cc20_scratch7.sem f1 g5 g7' hl7 hin5); iexists _
              isplitr
              rotate_left
              · isplitl [F11]; · iexact F11
                iexact H7
              ipureintro; intro y; rfl
          · -- the last trip of a tile with fifteen pieces: the second slot only drains
            have k20_h1 : k20_cond1 k = 1#1 := (cond1_iff k).mpr (by omega)
            have k20_h2 : k20_cond2 L k = 1#1 := cond2_iff L k
            have k20_h3 : ¬ k20_cond3 L k = 1#1 := fun h => absurd ((cond3_iff L k).mp h) (by omega)
            have k20_h4 : k20_cond4 k = 1#1 := (cond4_iff k).mpr (by omega)
            have k20_h5 : ¬ k20_cond5 L k = 1#1 := fun h => absurd ((cond5_iff L k).mp h) (by first | (unfold valid big at *; omega) | (unfold big at *; omega) | omega)
            have k20_h6 : ¬ k20_cond6 L k = 1#1 := fun h => absurd ((cond6_iff L k).mp h) (by first | (unfold valid big at *; omega) | (unfold big at *; omega) | omega)
            have v0 : valid L (2 * k.val) := by unfold valid big at *; omega
            have v1 : ¬ valid L (2 * k.val + 1) := by unfold valid big at *; omega
            have v2 : ¬ valid L (2 * k.val + 2) := by unfold valid big at *; omega
            have v3' : ¬ valid L (2 * k.val + 3) := by unfold valid big at *; omega
            have hm0 : 2 ≤ 2 * k.val ∧ valid L (2 * k.val - 2) := ⟨by omega, by unfold valid big at *; omega⟩
            have hm1 : 2 ≤ 2 * k.val + 1 ∧ valid L (2 * k.val + 1 - 2) := ⟨by omega, by unfold valid big at *; omega⟩
            ihave S8 := (Entails.of_eq (inSlotV_pos d L fx v0)) $$ S8
            icases S8 with ⟨%g4, %hin4, F8⟩
            ihave S9 := (Entails.of_eq (inSlotV_neg d L fx v1)) $$ S9
            icases S9 with ⟨⟨%g5, H5⟩, F9⟩
            ihave S10 := (Entails.of_eq (outSlotV_pos d L fx hm0)) $$ S10
            icases S10 with ⟨%g6, F10, R6⟩
            ihave S11 := (Entails.of_eq (outSlotV_pos d L fx hm1)) $$ S11
            icases S11 with ⟨%g7, F11, R7⟩
            ihave HX := (Entails.of_eq (xSet_out (xP d L fx) k.val hk)) $$ HX
            icases HX with ⟨-, -, HX⟩
            ihave HOut := (Entails.of_eq (oSet_out (oMix d L fx k.val) k.val hk)) $$ HOut
            icases HOut with ⟨Y0, -, HOut⟩
            ihave Y0 := (Entails.of_eq ((oMix_ge d L fx (t := k.val) (n := 2 * k.val) (by omega)).trans (oP_pos (F := F) d L v0))) $$ Y0
            icases Y0 with ⟨%f0, Y0⟩
            ihave Y0 := (Entails.of_eq (out_congr d L (off_5 L k v0).symm (out_inb L _) (k20_off5_inb L k k20_h2) f0)) $$ Y0
            sl_exec
            sl_for (laneV0 d L g4) $$ [F8_dst R6]
            case region =>
              intro (j : Fin k20_t2_loop.trips) _
              unfold laneV0
              iintro ⟨HA, %g, HB, %hl⟩
              sl_exec
              sl_step
              isplitl [HA]; · iexact HA
              iexists _; isplitl [HB]; · iexact HB
              ipureintro; exact lanes_step d L a4 a6 g4 g j _ _ hl
            · unfold laneV0
              isplitl [F8_dst]; · iexact F8_dst
              iexists _; isplitl [R6]; · iexact R6
              ipureintro; exact lanes_zero d L a4 a6 g4 _
            iintro %_ HI
            unfold laneV0
            icases HI with ⟨H4, %g6', H6, %hl6⟩
            have hl6 : Lanes d L a4 a6 g4 g6' 200 := Eq.mp (congrArg (Lanes d L a4 a6 g4 g6') trips2) hl6
            sl_exec
            sl_step
            isplitr; · iexact Hmw
            isplitl [HO]
            · iexists _; isplitr
              rotate_left
              · iexact HO
              ipureintro; intro p hp
              rcases Finset.mem_insert.mp hp with rfl | hp
              · exact .inr rfl
              rcases Finset.mem_insert.mp hp with rfl | hp
              · exact .inr rfl
              rcases Finset.mem_insert.mp hp with rfl | hp
              · exact .inr rfl
              exact hW' p hp
            isplitl [HX F8_src]
            · iapply (Entails.of_eq (xSet_in (xP d L fx) k.val hk).symm)
              isplitl [F8_src]; · iapply (Entails.of_eq (xP_pos d L fx v0).symm); iexact F8_src
              isplitr; · iapply (Entails.of_eq (xP_neg d L fx v1).symm); iempintro
              iexact HX
            isplitl [HOut F10_dst F11_dst]
            · iapply (Entails.of_eq (oSet_in (oMix d L fx (k.val + 1)) k.val hk (by omega)).symm)
              isplitl [F10_dst]; · iapply (Entails.of_eq ((oMix_lt d L fx (t := k.val + 1) (n := 2 * k.val - 2) (by omega)).trans (oQ_pos d L fx hm0.2)).symm); iexact F10_dst
              isplitl [F11_dst]
              · iapply (Entails.of_eq ((oMix_lt d L fx (t := k.val + 1) (n := 2 * k.val - 1) (by omega)).trans (oQ_pos d L fx (n := 2 * k.val - 1) (by have := hm1.2; rwa [show 2 * k.val + 1 - 2 = 2 * k.val - 1 by omega] at this))).symm)
                iapply (Entails.of_eq (congrArg (oqPiece d L fx) (show 2 * k.val + 1 - 2 = 2 * k.val - 1 by omega))); iexact F11_dst
              iapply (Entails.of_eq (oMix_core d L fx k.val)); iexact HOut
            isplitl [H4 F8]
            · iapply (Entails.of_eq (congrArg (inSlotV d L fx a4 cc20_scratch4.sem) (show 2 * k.val + 2 = 2 * (k.val + 1) by ring)))
              iapply (Entails.of_eq (inSlotV_neg d L fx v2).symm)
              isplitl [H4]; · iexists _; iexact H4
              iexact F8
            isplitl [F10 H6]
            · iapply (Entails.of_eq (congrArg (outSlotV d L fx a6 cc20_scratch6.sem) (show 2 * k.val + 2 = 2 * (k.val + 1) by ring)))
              iapply (fl_outV d L fx (off_5 L k v0) (k20_off5_inb L k k20_h2) v0 a4 a6 cc20_scratch6.sem f0 g4 g6' hl6 hin4); iexists _
              isplitr
              rotate_left
              · isplitl [F10]; · iexact F10
                iexact H6
              ipureintro; intro y; rfl
            isplitl [H5 F9]
            · iapply (Entails.of_eq (congrArg (inSlotV d L fx a5 cc20_scratch5.sem) (show 2 * k.val + 3 = 2 * (k.val + 1) + 1 by ring)))
              iapply (Entails.of_eq (inSlotV_neg d L fx v3').symm)
              isplitl [H5]; · iexists _; iexact H5
              iexact F9
            · iapply (Entails.of_eq (outSlotV_neg d L fx (m := 2 * (k.val + 1) + 1) (by intro h; apply v1; have := h.2; rwa [show 2 * (k.val + 1) + 1 - 2 = 2 * k.val + 1 by omega] at this)).symm)
              isplitl [R7]; · iexists _; iexact R7
              iexact F11
    · have hk0 : k.val = 0 := by omega
      -- the first trip: nothing to drain
      have k20_h1 : ¬ k20_cond1 k = 1#1 := fun h => absurd ((cond1_iff k).mp h) (by omega)
      have k20_h2 : k20_cond2 L k = 1#1 := cond2_iff L k
      have k20_h3 : k20_cond3 L k = 1#1 := (cond3_iff L k).mpr (by omega)
      have k20_h4 : ¬ k20_cond4 k = 1#1 := fun h => absurd ((cond4_iff k).mp h) (by omega)
      have k20_h5 : k20_cond5 L k = 1#1 := (cond5_iff L k).mpr (by first | (unfold valid big at *; omega) | (unfold big at *; omega) | omega)
      have k20_h6 : k20_cond6 L k = 1#1 := (cond6_iff L k).mpr (by first | (unfold valid big at *; omega) | (unfold big at *; omega) | omega)
      have v0 : valid L (2 * k.val) := by unfold valid big at *; omega
      have v1 : valid L (2 * k.val + 1) := by unfold valid big at *; omega
      have v2 : valid L (2 * k.val + 2) := by unfold valid big at *; omega
      have v3' : valid L (2 * k.val + 3) := by unfold valid big at *; omega
      have hm0 : ¬ (2 ≤ 2 * k.val ∧ valid L (2 * k.val - 2)) := by omega
      have hm1 : ¬ (2 ≤ 2 * k.val + 1 ∧ valid L (2 * k.val + 1 - 2)) := by omega
      ihave S8 := (Entails.of_eq (inSlotV_pos d L fx v0)) $$ S8
      icases S8 with ⟨%g4, %hin4, F8⟩
      ihave S9 := (Entails.of_eq (inSlotV_pos d L fx v1)) $$ S9
      icases S9 with ⟨%g5, %hin5, F9⟩
      ihave S10 := (Entails.of_eq (outSlotV_neg d L fx hm0)) $$ S10
      icases S10 with ⟨⟨%g6, R6⟩, F10⟩
      ihave S11 := (Entails.of_eq (outSlotV_neg d L fx hm1)) $$ S11
      icases S11 with ⟨⟨%g7, R7⟩, F11⟩
      ihave HX := (Entails.of_eq (xSet_out (xP d L fx) k.val hk)) $$ HX
      icases HX with ⟨X2, X3, HX⟩
      ihave X2 := (Entails.of_eq (xP_pos d L fx v2)) $$ X2
      ihave X2 := (Entails.of_eq (in_congr d L (off_6 L k v2).symm (in_inb L _) (k20_off6_inb L k k20_h3) fx)) $$ X2
      ihave X3 := (Entails.of_eq (xP_pos d L fx v3')) $$ X3
      ihave X3 := (Entails.of_eq (in_congr d L (off_11 L k v3').symm (in_inb L _) (k20_off11_inb L k k20_h6) fx)) $$ X3
      ihave HOut := (Entails.of_eq (oSet_out (oMix d L fx k.val) k.val hk)) $$ HOut
      icases HOut with ⟨Y0, Y1, HOut⟩
      ihave Y0 := (Entails.of_eq ((oMix_ge d L fx (t := k.val) (n := 2 * k.val) (by omega)).trans (oP_pos (F := F) d L v0))) $$ Y0
      icases Y0 with ⟨%f0, Y0⟩
      ihave Y0 := (Entails.of_eq (out_congr d L (off_5 L k v0).symm (out_inb L _) (k20_off5_inb L k k20_h2) f0)) $$ Y0
      ihave Y1 := (Entails.of_eq ((oMix_ge d L fx (t := k.val) (n := 2 * k.val + 1) (by omega)).trans (oP_pos (F := F) d L v1))) $$ Y1
      icases Y1 with ⟨%f1, Y1⟩
      ihave Y1 := (Entails.of_eq (out_congr d L (off_10 L k v1).symm (out_inb L _) (k20_off10_inb L k k20_h5) f1)) $$ Y1
      sl_exec
      sl_for (laneV0 d L g4) $$ [F8_dst R6]
      case region =>
        intro (j : Fin k20_t2_loop.trips) _
        unfold laneV0
        iintro ⟨HA, %g, HB, %hl⟩
        sl_exec
        sl_step
        isplitl [HA]; · iexact HA
        iexists _; isplitl [HB]; · iexact HB
        ipureintro; exact lanes_step d L a4 a6 g4 g j _ _ hl
      · unfold laneV0
        isplitl [F8_dst]; · iexact F8_dst
        iexists _; isplitl [R6]; · iexact R6
        ipureintro; exact lanes_zero d L a4 a6 g4 _
      iintro %_ HI
      unfold laneV0
      icases HI with ⟨H4, %g6', H6, %hl6⟩
      have hl6 : Lanes d L a4 a6 g4 g6' 200 := Eq.mp (congrArg (Lanes d L a4 a6 g4 g6') trips2) hl6
      sl_exec
      sl_for (laneV1 d L g5) $$ [F9_dst R7]
      case region =>
        intro (j : Fin k20_t3_loop.trips) _
        unfold laneV1
        iintro ⟨HA, %g, HB, %hl⟩
        sl_exec
        sl_step
        isplitl [HA]; · iexact HA
        iexists _; isplitl [HB]; · iexact HB
        ipureintro; exact lanes_step' d L a5 a7 g5 g j _ _ hl
      · unfold laneV1
        isplitl [F9_dst]; · iexact F9_dst
        iexists _; isplitl [R7]; · iexact R7
        ipureintro; exact lanes_zero d L a5 a7 g5 _
      iintro %_ HI
      unfold laneV1
      icases HI with ⟨H5, %g7', H7, %hl7⟩
      have hl7 : Lanes d L a5 a7 g5 g7' 200 := Eq.mp (congrArg (Lanes d L a5 a7 g5 g7') trips3) hl7
      sl_exec
      sl_step
      isplitr; · iexact Hmw
      isplitl [HO]
      · iexists _; isplitr
        rotate_left
        · iexact HO
        ipureintro; intro p hp
        rcases Finset.mem_insert.mp hp with rfl | hp
        · exact .inr rfl
        rcases Finset.mem_insert.mp hp with rfl | hp
        · exact .inr rfl
        exact hW' p hp
      isplitl [HX F8_src F9_src]
      · iapply (Entails.of_eq (xSet_in (xP d L fx) k.val hk).symm)
        isplitl [F8_src]; · iapply (Entails.of_eq (xP_pos d L fx v0).symm); iexact F8_src
        isplitl [F9_src]; · iapply (Entails.of_eq (xP_pos d L fx v1).symm); iexact F9_src
        iexact HX
      isplitl [HOut]
      · iapply (Entails.of_eq (congrArg (fun s => bigSep s (oMix d L fx (k.val + 1))) (show oCore k.val = oSet (k.val + 1) by rw [hk0]; decide)))
        iapply (Entails.of_eq (oMix_core d L fx k.val)); iexact HOut
      isplitl [F8]
      · iapply (Entails.of_eq (congrArg (inSlotV d L fx a4 cc20_scratch4.sem) (show 2 * k.val + 2 = 2 * (k.val + 1) by ring)))
        iapply (fl_inV d L fx (off_6 L k v2) (k20_off6_inb L k k20_h3) v2 a4 cc20_scratch4.sem); iexists _, _
        isplitr
        rotate_left
        · iexact F8
        ipureintro; intro y; rfl
      isplitl [F10 H6]
      · iapply (Entails.of_eq (congrArg (outSlotV d L fx a6 cc20_scratch6.sem) (show 2 * k.val + 2 = 2 * (k.val + 1) by ring)))
        iapply (fl_outV d L fx (off_5 L k v0) (k20_off5_inb L k k20_h2) v0 a4 a6 cc20_scratch6.sem f0 g4 g6' hl6 hin4); iexists _
        isplitr
        rotate_left
        · isplitl [F10]; · iexact F10
          iexact H6
        ipureintro; intro y; rfl
      isplitl [F9]
      · iapply (Entails.of_eq (congrArg (inSlotV d L fx a5 cc20_scratch5.sem) (show 2 * k.val + 3 = 2 * (k.val + 1) + 1 by ring)))
        iapply (fl_inV d L fx (off_11 L k v3') (k20_off11_inb L k k20_h6) v3' a5 cc20_scratch5.sem); iexists _, _
        isplitr
        rotate_left
        · iexact F9
        ipureintro; intro y; rfl
      · iapply (Entails.of_eq (congrArg (outSlotV d L fx a7 cc20_scratch7.sem) (show 2 * k.val + 1 + 2 = 2 * (k.val + 1) + 1 by ring)))
        iapply (fl_outV d L fx (off_10 L k v1) (k20_off10_inb L k k20_h5) v1 a5 a7 cc20_scratch7.sem f1 g5 g7' hl7 hin5); iexists _
        isplitr
        rotate_left
        · isplitl [F11]; · iexact F11
          iexact H7
        ipureintro; intro y; rfl
  · unfold invV
    isplitr; · iexact Hmw
    isplitl [HO]
    · iexists W; isplitr
      · ipureintro; exact fun p hp => .inl hp
      · iexact HO
    isplitl [HX]; · iexact HX
    isplitl [HOut]; · iapply (Entails.of_eq (oMix_zero d L fx).symm); iexact HOut
    isplitl [S8]; · iexact S8
    isplitl [H6 Hs10]
    · rw [outSlotV_neg d L fx (by omega)]; isplitl [H6]; · iexists _; iexact H6
      iexact Hs10
    isplitl [S9]; · iexact S9
    rw [outSlotV_neg d L fx (by omega)]; isplitl [H7]; · iexists _; iexact H7
    iexact Hs11
  iintro %acc' HI
  ihave HI := (Entails.of_eq (congrArg (fun t => invV d L O W fx t acc') trips1)) $$ HI
  unfold invV
  icases HI with ⟨-, ⟨%W', %hW', HO⟩, HX, HOut, S8, S10, S9, S11⟩
  have nv16 : ¬ valid L (2 * 8) := by unfold valid; omega
  have nv17 : ¬ valid L (2 * 8 + 1) := by unfold valid; omega
  have hm14 : 2 ≤ 2 * 8 ∧ valid L (2 * 8 - 2) := ⟨by omega, Or.inl (by omega)⟩
  ihave S8 := (Entails.of_eq (inSlotV_neg d L fx nv16)) $$ S8
  icases S8 with ⟨⟨%g4', H4⟩, Hs8⟩
  ihave S9 := (Entails.of_eq (inSlotV_neg d L fx nv17)) $$ S9
  icases S9 with ⟨⟨%g5', H5⟩, Hs9⟩
  ihave S10 := (Entails.of_eq (outSlotV_pos d L fx hm14)) $$ S10
  icases S10 with ⟨%g6', F10, R6⟩
  by_cases hb : big L
  · have k20_h8 : k20_cond8 L = 1#1 := (cond8_iff L).mpr hb
    have hm15 : 2 ≤ 2 * 8 + 1 ∧ valid L (2 * 8 + 1 - 2) := ⟨by omega, Or.inr ⟨by omega, hb⟩⟩
    ihave S11 := (Entails.of_eq (outSlotV_pos d L fx hm15)) $$ S11
    icases S11 with ⟨%g7', F11, R7⟩
    sl_exec
    sl_step
    isplitl [HX]; · iapply (xRange_end d L fx); iexact HX
    isplitl [HOut F10_dst F11_dst]
    · iapply (Entails.of_eq (oRange_end (oQ d L fx)).symm)
      isplitl [F10_dst]; · iapply (Entails.of_eq (oQ_pos d L fx hm14.2).symm); iexact F10_dst
      isplitl [F11_dst]; · iapply (Entails.of_eq (oQ_pos d L fx hm15.2).symm); iexact F11_dst
      iapply (Entails.of_eq (oMix_end d L fx)); iexact HOut
    isplitl [H4]; · iexists _; iexact H4
    isplitl [H5]; · iexists _; iexact H5
    isplitl [R6]; · iexists _; iexact R6
    isplitl [R7]; · iexists _; iexact R7
    isplitl [Hs8]; · iexact Hs8
    isplitl [Hs9]; · iexact Hs9
    isplitl [F10]; · iexact F10
    isplitl [F11]; · iexact F11
    isplitl [HO]
    · iexists _; isplitr
      rotate_left
      · iexact HO
      ipureintro; intro p hp
      rcases Finset.mem_insert.mp hp with rfl | hp
      · exact .inr rfl
      rcases Finset.mem_insert.mp hp with rfl | hp
      · exact .inr rfl
      exact hW' p hp
    iexact HR
  · have k20_h8 : ¬ k20_cond8 L = 1#1 := fun h => hb ((cond8_iff L).mp h)
    have hm15 : ¬ (2 ≤ 2 * 8 + 1 ∧ valid L (2 * 8 + 1 - 2)) := by intro h; have := h.2; unfold valid at this; omega
    ihave S11 := (Entails.of_eq (outSlotV_neg d L fx hm15)) $$ S11
    icases S11 with ⟨⟨%g7', R7⟩, F11⟩
    sl_exec
    sl_step
    isplitl [HX]; · iapply (xRange_end d L fx); iexact HX
    isplitl [HOut F10_dst]
    · iapply (Entails.of_eq (oRange_end (oQ d L fx)).symm)
      isplitl [F10_dst]; · iapply (Entails.of_eq (oQ_pos d L fx hm14.2).symm); iexact F10_dst
      isplitr; · iapply (Entails.of_eq (oQ_neg d L fx (n := 15) (by unfold valid; omega)).symm); iempintro
      iapply (Entails.of_eq (oMix_end d L fx)); iexact HOut
    isplitl [H4]; · iexists _; iexact H4
    isplitl [H5]; · iexists _; iexact H5
    isplitl [R6]; · iexists _; iexact R6
    isplitl [R7]; · iexists _; iexact R7
    isplitl [Hs8]; · iexact Hs8
    isplitl [Hs9]; · iexact Hs9
    isplitl [F10]; · iexact F10
    isplitl [F11]; · iexact F11
    isplitl [HO]
    · iexists _; isplitr
      rotate_left
      · iexact HO
      ipureintro; intro p hp
      rcases Finset.mem_insert.mp hp with rfl | hp
      · exact .inr rfl
      exact hW' p hp
    iexact HR

/-! The subcore's scoped storage: the four staging buffers and the four semaphores of this call, and the rest. -/

abbrev c8 : GSem nD τ sig := (thr d L, SemLoc.dma cc20_scratch4.sem)
abbrev c9 : GSem nD τ sig := (thr d L, SemLoc.dma cc20_scratch5.sem)
abbrev c10 : GSem nD τ sig := (thr d L, SemLoc.dma cc20_scratch6.sem)
abbrev c11 : GSem nD τ sig := (thr d L, SemLoc.dma cc20_scratch7.sem)

omit [FloatOps F] in
theorem ownSems0_V :
    (ownSems0 (thr d L) : sProp 𝕄)
      = iprop(semVal (c8 d L) 0 ∗ semVal (c9 d L) 0 ∗ semVal (c10 d L) 0 ∗ semVal (c11 d L) 0
          ∗ bigSep (((((ownCells (thr d L)).erase (c8 d L)).erase (c9 d L)).erase (c10 d L)).erase (c11 d L)) fun g => semVal g 0) := by
  unfold SparseCore.Cfg.ownSems0
  rw [SparseCore.bigSep_erase' ((mem_ownCells (g := c8 d L)).mpr ⟨rfl, by
      show (SemLoc.dma cc20_scratch4.sem : SemLoc sig).isScoped .scVector = true; decide⟩),
    SparseCore.bigSep_erase' (Finset.mem_erase.mpr ⟨fun e => absurd (Prod.mk.inj e).2 (by decide), (mem_ownCells (g := c9 d L)).mpr ⟨rfl, by
      show (SemLoc.dma cc20_scratch5.sem : SemLoc sig).isScoped .scVector = true; decide⟩⟩),
    SparseCore.bigSep_erase' (Finset.mem_erase.mpr ⟨fun e => absurd (Prod.mk.inj e).2 (by decide), Finset.mem_erase.mpr ⟨fun e => absurd (Prod.mk.inj e).2 (by decide),
      (mem_ownCells (g := c10 d L)).mpr ⟨rfl, by show (SemLoc.dma cc20_scratch6.sem : SemLoc sig).isScoped .scVector = true; decide⟩⟩⟩),
    SparseCore.bigSep_erase' (Finset.mem_erase.mpr ⟨fun e => absurd (Prod.mk.inj e).2 (by decide), Finset.mem_erase.mpr ⟨fun e => absurd (Prod.mk.inj e).2 (by decide),
      Finset.mem_erase.mpr ⟨fun e => absurd (Prod.mk.inj e).2 (by decide),
      (mem_ownCells (g := c11 d L)).mpr ⟨rfl, by show (SemLoc.dma cc20_scratch7.sem : SemLoc sig).isScoped .scVector = true; decide⟩⟩⟩⟩)]

abbrev pV (L : grid20.Coords) : Proc τ := Proc.scVector (cV L) (jV L)

omit [FloatOps F] in
theorem ownBufs_V :
    (ownBufs (thr d L) : sProp 𝕄)
      = iprop((∃ f, (thr d L).loc cc20_scratch0 ↦{fullShare} f) ∗ (∃ f, (thr d L).loc cc20_scratch1 ↦{fullShare} f)
          ∗ (∃ f, (thr d L).loc cc20_scratch2 ↦{fullShare} f) ∗ (∃ f, (thr d L).loc cc20_scratch3 ↦{fullShare} f)
          ∗ bigSep (((((ownRefs (τ := τ) (pV L)).erase ((pV L).devRef cc20_scratch0)).erase ((pV L).devRef cc20_scratch1)).erase
              ((pV L).devRef cc20_scratch2)).erase ((pV L).devRef cc20_scratch3))
              fun b => iprop(∃ f, ((d, b) : Loc nD τ sig) ↦{fullShare} f)) := by
  unfold SparseCore.Cfg.ownBufs
  refine (SparseCore.bigSep_erase' (SparseCore.Cfg.mem_ownRefs_of_owner (p := pV L) (b := (pV L).devRef cc20_scratch0) rfl)).trans ?_
  rw [SparseCore.bigSep_erase' (Finset.mem_erase.mpr ⟨fun e => absurd (Proc.devRef_injective _ e) (show (cc20_scratch1 : Ref sig .scVector) ≠ cc20_scratch0 by decide),
      SparseCore.Cfg.mem_ownRefs_of_owner (p := pV L) (b := (pV L).devRef cc20_scratch1) rfl⟩),
    SparseCore.bigSep_erase' (Finset.mem_erase.mpr ⟨fun e => absurd (Proc.devRef_injective _ e) (show (cc20_scratch2 : Ref sig .scVector) ≠ cc20_scratch1 by decide),
      Finset.mem_erase.mpr ⟨fun e => absurd (Proc.devRef_injective _ e) (show (cc20_scratch2 : Ref sig .scVector) ≠ cc20_scratch0 by decide),
      SparseCore.Cfg.mem_ownRefs_of_owner (p := pV L) (b := (pV L).devRef cc20_scratch2) rfl⟩⟩),
    SparseCore.bigSep_erase' (Finset.mem_erase.mpr ⟨fun e => absurd (Proc.devRef_injective _ e) (show (cc20_scratch3 : Ref sig .scVector) ≠ cc20_scratch2 by decide),
      Finset.mem_erase.mpr ⟨fun e => absurd (Proc.devRef_injective _ e) (show (cc20_scratch3 : Ref sig .scVector) ≠ cc20_scratch1 by decide),
      Finset.mem_erase.mpr ⟨fun e => absurd (Proc.devRef_injective _ e) (show (cc20_scratch3 : Ref sig .scVector) ≠ cc20_scratch0 by decide),
      SparseCore.Cfg.mem_ownRefs_of_owner (p := pV L) (b := (pV L).devRef cc20_scratch3) rfl⟩⟩⟩)]

/-- The rest of the subcore's scoped storage, which the task does not touch. -/
def restR : sProp 𝕄 :=
  iprop((bigSep (((((ownRefs (τ := τ) (pV L)).erase ((pV L).devRef cc20_scratch0)).erase ((pV L).devRef cc20_scratch1)).erase
              ((pV L).devRef cc20_scratch2)).erase ((pV L).devRef cc20_scratch3))
              fun b => iprop(∃ f, ((d, b) : Loc nD τ sig) ↦{fullShare} f))
      ∗ bigSep (((((ownCells (thr d L)).erase (c8 d L)).erase (c9 d L)).erase (c10 d L)).erase (c11 d L)) fun g => semVal g 0)

theorem body_pre (hO : ∀ g, O g none = 0) :
    iprop(levAts (K (F := F)).L (K (F := F)).lev ∗ emp ∗ goRes d L fx ∗ ownBufs (thr d L) ∗ ownSems0 (thr d L) ∗ owes (thr d L) O W)
      ⊢ runPre d L O W fx (restR (F := F) d L) := by
  rw [ownSems0_V, ownBufs_V]
  unfold goRes runPre restR
  iintro ⟨#Hlv, -, ⟨HX, HOut⟩, ⟨H4, H5, H6, H7, Hbufs⟩, ⟨Hs8, Hs9, Hs10, Hs11, Hsems⟩, HO⟩
  ihave Hmw := ((K (F := F)).mayWaits_none (thr := thr d L) hO) $$ Hlv
  isplitr; · iexact Hmw
  isplitl [HO]; · iexact HO
  isplitl [HX]; · iexact HX
  isplitl [HOut]; · iexact HOut
  isplitl [H4]; · iexact H4
  isplitl [H5]; · iexact H5
  isplitl [H6]; · iexact H6
  isplitl [H7]; · iexact H7
  isplitl [Hs8]; · iexact Hs8
  isplitl [Hs9]; · iexact Hs9
  isplitl [Hs10]; · iexact Hs10
  isplitl [Hs11]; · iexact Hs11
  isplitl [Hbufs]; · iexact Hbufs
  iexact Hsems

theorem body_post :
    runPost d L O W fx (restR (F := F) d L)
      ⊢ iprop(tdRes d L fx ∗ ownBufs (thr d L) ∗ ownSems0 (thr d L) ∗ ∃ W', ⌜∀ p ∈ W', p ∈ W ∨ p.2 = none⌝ ∗ owes (thr d L) O W') := by
  rw [ownSems0_V, ownBufs_V]
  unfold tdRes runPost restR
  iintro ⟨HX, HOut, H4, H5, H6, H7, Hs8, Hs9, Hs10, Hs11, HW, Hbufs, Hsems⟩
  isplitl [HX HOut]
  · isplitl [HX]; · iexact HX
    iexact HOut
  isplitl [H4 H5 H6 H7 Hbufs]
  · isplitl [H4]; · iexact H4
    isplitl [H5]; · iexact H5
    isplitl [H6]; · iexact H6
    isplitl [H7]; · iexact H7
    iexact Hbufs
  isplitl [Hs8 Hs9 Hs10 Hs11 Hsems]
  · isplitl [Hs8]; · iexact Hs8
    isplitl [Hs9]; · iexact Hs9
    isplitl [Hs10]; · iexact Hs10
    isplitl [Hs11]; · iexact Hs11
    iexact Hsems
  iexact HW

/-- The task in the launch theorem's shape: from what the call hands the tile and the subcore's scoped storage to
    what the tile hands back and the storage again. -/
theorem tile_body (hF : (K (F := F)).Facts) (hO : ∀ g, O g none = 0) :
    iprop(levAts (K (F := F)).L (K (F := F)).lev ∗ emp ∗ goRes d L fx ∗ scopedBufs (thr d L) ∗ scopedSems0 (thr d L) ∗ owes (thr d L) O W)
      ⊢ wp frame (wpE (defs₀ (F := F)) 𝒱₀ (thr d L) none) Set.univ
          (cc20_sc_group L xtW (Memref.isWhole_whole _) oW (Memref.isWhole_whole _) a4 (Memref.isWhole_whole _) a5 (Memref.isWhole_whole _)
            a6 (Memref.isWhole_whole _) a7 (Memref.isWhole_whole _) cc20_scratch4 cc20_scratch5 cc20_scratch6 cc20_scratch7)
          fun _ => iprop(tdRes d L fx ∗ scopedBufs (thr d L) ∗ scopedSems0 (thr d L)
            ∗ ∃ W', ⌜∀ p ∈ W', p ∈ W ∨ p.2 = none⌝ ∗ owes (thr d L) O W') := by
  rw [(K (F := F)).scopedBufs_V hF d (cV L) (jV L), SparseCore.Cfg.scopedSems0_V (Val := Elt F) d (cV L) (jV L)]
  exact (body_pre d L O W fx hO).trans ((tile_run d L O W fx (restR (F := F) d L)).trans (wp_mono frame _ _ fun _ => body_post d L O W fx))

end Tile

end Cert.Proof.TileB20

end
-- ==== Proof.TileVal21.lean ====
/-
  What the staging buffers of one vector subcore hold while it copies a piece of 3200 consecutive elements of row 21 of
  the transposed argument into the flat result, read index by index. No program and no ownership here: only the contents.

  A transfer lands the piece in row 0 of an 8 × 3200 staging array (`InRow`: position (0, t) of that row holds element
  (0, pos + t) of the transposed argument, `pos` the piece's first column). A loop of 200 trips copies that row, 16 lanes
  per trip, into the first 3200 elements of a flat staging array of 25600: trip `j` reads the 1 × 16 window at columns
  [16 j, 16 j + 16) of row 0 and writes it, flattened, at elements [16 j, 16 j + 16). After `j` trips the first 16 j
  elements of the flat array are the first 16 j elements of the row (`Lanes`); a trip extends the prefix by 16
  (`lanes_step`: an element below 16 j is outside the window written and keeps its value, an element of the window reads
  the lane written there, which is the row's element at the same column). A second transfer writes the first 3200
  elements of the flat array to the piece of the result at the same `pos`; so every element of that piece of the result
  holds the element of row 21 of the transposed argument at its own position (`out_written`): the composite of the three
  index maps t ↦ (0, pos + t) ↦ (0, t) ↦ t ↦ pos + t is the identity on positions of the row.
-/
import proofs.«206869_g37898791420194_cont_8to1_b_558_20_alg».proof.Proof.TileK21Defs
import proofs.«206869_g37898791420194_cont_8to1_b_558_20_alg».proof.Proof.Spec
import Idealize.ShloMosaic.Lib.WritesUnit
import Idealize.ShloMosaic.Lib.ValueLayout

noncomputable section

namespace Cert.Proof.TileVal21

open Cert.Proof.TileK21 Cert.KernelIdeal Cert.KernelIdeal.Gen
open Idealize.ShloMosaic Idealize.ShloMosaic.ValueIdx

variable {F : FTy → Type} [FloatOps F]
variable (d : Dev nD) (L : grid21.Coords)
variable (fx : Buf (Elt F) ((Memref.whole main_v0_scv : Memref sig .scVector .hbm S22x1600000 .f32).view.loc (thr d L)))

abbrev rowRect : Rect S8x3200 := Rect.unit (s := S8x3200) ![0, 0] S1x3200.size inb_S8x3200_S1x3200_0_0

/-- row 0 of the staging array is piece n of the argument row -/
def InRow (a : Memref sig .scVector .vmem S8x3200 .f32) (ga : Buf (Elt F) (a.view.loc (thr d L))) (n : ℕ) : Prop :=
  ∀ y : S1x3200.Idx, a.view.read (Elt F) ga (rowRect.emb y) = (inM L n).view.read (Elt F) fx y

theorem inRow_fetch (a : Memref sig .scVector .vmem S8x3200 .f32) (gold : Buf (Elt F) (a.view.loc (thr d L)))
    (w : S1x3200.Idx → Elt F .f32) (n : ℕ) (hw : ∀ y, w y = (inM L n).view.read (Elt F) fx y) :
    InRow d L fx a (a.view.writes (Elt F) gold [⟨rowRect, w⟩]) n :=
  fun y => (View.read_writes_cons_emb a.view gold rowRect w [] y).trans (hw y)

def Lanes (a : Memref sig .scVector .vmem S8x3200 .f32) (b : Memref sig .scVector .vmem S25600 .f32)
    (ga : Buf (Elt F) (a.view.loc (thr d L))) (gb : Buf (Elt F) (b.view.loc (thr d L))) (j : ℕ) : Prop :=
  ∀ (r : ℕ) (hr : r < 3200), r < 16 * j →
    b.view.read (Elt F) gb (ix1 (⟨r, by omega⟩ : Fin 25600)) = a.view.read (Elt F) ga (ix2 (0 : Fin 8) (⟨r, hr⟩ : Fin 3200))

theorem lanes_zero (a : Memref sig .scVector .vmem S8x3200 .f32) (b : Memref sig .scVector .vmem S25600 .f32)
    (ga : Buf (Elt F) (a.view.loc (thr d L))) (gb : Buf (Elt F) (b.view.loc (thr d L))) : Lanes d L a b ga gb 0 := by
  intro r hr h; omega

/-- The 1 × 16 window at column `c` of the staging array, read at lane `t`, is element `(0, c + t)`. -/
theorem idx_window {off : Fin 2 → ℕ} {c : ℕ} (h : off = ![0, c]) (p : ∀ a', off a' + S1x16.size a' ≤ S8x3200.size a')
    (t : Fin 16) (hr : c + t.val < 3200) :
    (Rect.unit (s := S8x3200) off S1x16.size p).toLoadRect.idx (ix2 (0 : Fin 1) t) = ix2 (0 : Fin 8) (⟨c + t.val, hr⟩ : Fin 3200) := by
  subst h
  funext a'; apply Fin.ext
  rw [LoadRect.idx_apply]
  match a' with
  | ⟨0, _⟩ => show 0 + 1 * 0 = 0; omega
  | ⟨1, _⟩ => show c + 1 * t.val = c + t.val; omega

/-- One trip of a lane-copy loop, the offsets given by their closed forms. -/
theorem lanes_step_core (a : Memref sig .scVector .vmem S8x3200 .f32) (b : Memref sig .scVector .vmem S25600 .f32)
    (ga : Buf (Elt F) (a.view.loc (thr d L))) (gb : Buf (Elt F) (b.view.loc (thr d L)))
    (t : ℕ) {off3 : Fin 2 → ℕ} {off4 : Fin 1 → ℕ} (h3 : off3 = ![0, 16 * t]) (h4 : off4 = ![16 * t])
    (p3 : ∀ a', off3 a' + S1x16.size a' ≤ S8x3200.size a') (p4 : ∀ a', off4 a' + S16.size a' ≤ S25600.size a')
    (h : Lanes d L a b ga gb t) :
    Lanes d L a b ga (b.view.writes (Elt F) gb [⟨Rect.unit (s := S25600) off4 S16.size p4,
      shapeCast S16 (a.view.readAt (Elt F) (Rect.unit (s := S8x3200) off3 S1x16.size p3).toLoadRect ga) shapeCasts_S1x16_S16⟩]) (t + 1) := by
  intro r hr hlt
  by_cases hlo : r < 16 * t
  · refine (View.read_writes_cons_unit_of_not_mem b.view gb p4 _ [] _ h4 (0 : Fin 1) (Or.inl ?_)).trans (h r hr hlo)
    show r < 16 * t
    exact hlo
  · have hx : r - 16 * t < 16 := by omega
    refine (View.read_writes_cons_unit_of_mem b.view gb p4 _ [] _ (ix1 (⟨r - 16 * t, hx⟩ : Fin 16)) h4 ?_).trans ?_
    · intro a'
      match a' with
      | ⟨0, _⟩ => show r = 16 * t + (r - 16 * t); omega
    · rw [shapeCast_1a_a_apply, View.readAt_apply, idx_window h3 p3 ⟨r - 16 * t, hx⟩ (by show 16 * t + (r - 16 * t) < 3200; omega)]
      congr 2
      apply Fin.ext
      show 16 * t + (r - 16 * t) = r
      omega

theorem lanes_step (a : Memref sig .scVector .vmem S8x3200 .f32) (b : Memref sig .scVector .vmem S25600 .f32)
    (ga : Buf (Elt F) (a.view.loc (thr d L))) (gb : Buf (Elt F) (b.view.loc (thr d L)))
    (j : Fin k21_t2_loop.trips) (p3 : ∀ a', (k21_off3 j) a' + S1x16.size a' ≤ S8x3200.size a')
    (p4 : ∀ a', (k21_off4 j) a' + S16.size a' ≤ S25600.size a') (h : Lanes d L a b ga gb j.val) :
    Lanes d L a b ga (b.view.writes (Elt F) gb [⟨Rect.unit (s := S25600) (k21_off4 j) S16.size p4,
      k21_pay1 (a.view.readAt (Elt F) (Rect.unit (s := S8x3200) (k21_off3 j) S1x16.size p3).toLoadRect ga)⟩]) (j.val + 1) :=
  lanes_step_core d L a b ga gb j.val (k21_off3_eq j) (k21_off4_eq j) p3 p4 h

theorem lanes_step' (a : Memref sig .scVector .vmem S8x3200 .f32) (b : Memref sig .scVector .vmem S25600 .f32)
    (ga : Buf (Elt F) (a.view.loc (thr d L))) (gb : Buf (Elt F) (b.view.loc (thr d L)))
    (j : Fin k21_t3_loop.trips) (p3 : ∀ a', (k21_off8 j) a' + S1x16.size a' ≤ S8x3200.size a')
    (p4 : ∀ a', (k21_off9 j) a' + S16.size a' ≤ S25600.size a') (h : Lanes d L a b ga gb j.val) :
    Lanes d L a b ga (b.view.writes (Elt F) gb [⟨Rect.unit (s := S25600) (k21_off9 j) S16.size p4,
      k21_pay2 (a.view.readAt (Elt F) (Rect.unit (s := S8x3200) (k21_off8 j) S1x16.size p3).toLoadRect ga)⟩]) (j.val + 1) :=
  lanes_step_core d L a b ga gb j.val (k21_off8_eq j) (k21_off9_eq j) p3 p4 h

/-- Position `y` of the write-out window of the flat staging array is its element `y 0`. -/
theorem stg_emb (y : S3200.Idx) (hy : (y 0).val < 25600) :
    (Rect.unit (s := S25600) ![0] S3200.size inb_S25600_S3200_0).emb y = ix1 (⟨(y 0).val, hy⟩ : Fin 25600) := by
  funext a'; apply Fin.ext
  match a' with
  | ⟨0, _⟩ => show 0 + 1 * (y 0).val = (y 0).val; omega

/-- Position `(0, t)` of row 0 of the staging array is its element `(0, t)`. -/
theorem row_emb (t : Fin 3200) : rowRect.emb (ix2 (0 : Fin 1) t) = ix2 (0 : Fin 8) t := by
  funext a'; apply Fin.ext
  match a' with
  | ⟨0, _⟩ => show 0 + 1 * 0 = 0; omega
  | ⟨1, _⟩ => show 0 + 1 * t.val = t.val; omega

/-- Position `(0, t)` of piece `n` of the argument row is element `(0, pos + t)` of the transposed argument;
    position `y` of piece `n` of the result is element `pos + y 0` of the result. -/
theorem in_emb (n : ℕ) (t : Fin 3200) (h : pos L n + t.val < 1600000) :
    (inM L n).view.emb (ix2 (0 : Fin 1) t) = ix2 (21 : Fin 22) (⟨pos L n + t.val, h⟩ : Fin 1600000) := by
  funext a'; apply Fin.ext
  match a' with
  | ⟨0, _⟩ => show 21 + 1 * 0 = 21; omega
  | ⟨1, _⟩ => show pos L n + 1 * t.val = pos L n + t.val; omega

theorem out_emb (n : ℕ) (y : S3200.Idx) (h : pos L n + (y 0).val < 1600000) :
    (outM L n).view.emb y = ix1 (⟨pos L n + (y 0).val, h⟩ : Fin 1600000) := by
  funext a'; apply Fin.ext
  match a' with
  | ⟨0, _⟩ => show pos L n + 1 * (y 0).val = pos L n + (y 0).val; omega

/-- Both lane-copy loops run 200 trips: 200 · 16 = 3200, the whole row. -/
theorem trips2 : k21_t2_loop.trips = 200 := by decide
theorem trips3 : k21_t3_loop.trips = 200 := by decide

/-- After all its trips a lane-copy loop has copied the whole row. -/
theorem lanes_all (a : Memref sig .scVector .vmem S8x3200 .f32) (b : Memref sig .scVector .vmem S25600 .f32)
    (ga : Buf (Elt F) (a.view.loc (thr d L))) (gb : Buf (Elt F) (b.view.loc (thr d L)))
    (h : Lanes d L a b ga gb k21_t2_loop.trips) : Lanes d L a b ga gb 200 := trips2 ▸ h
theorem lanes_all' (a : Memref sig .scVector .vmem S8x3200 .f32) (b : Memref sig .scVector .vmem S25600 .f32)
    (ga : Buf (Elt F) (a.view.loc (thr d L))) (gb : Buf (Elt F) (b.view.loc (thr d L)))
    (h : Lanes d L a b ga gb k21_t3_loop.trips) : Lanes d L a b ga gb 200 := trips3 ▸ h

/-- The write-out of a piece: the first 3200 elements of the flat staging array, which the 200 lane copies filled from
    row 0 of the staging array, which the fetch filled from piece `n` of row 21 of the transposed argument, land at
    piece `n` of the result, at the same positions of the row. -/
theorem out_written (a : Memref sig .scVector .vmem S8x3200 .f32) (b : Memref sig .scVector .vmem S25600 .f32) (n : ℕ)
    (ga : Buf (Elt F) (a.view.loc (thr d L))) (gb : Buf (Elt F) (b.view.loc (thr d L)))
    (f0 : Buf (Elt F) ((outM L n).view.loc (thr d L))) (w : S3200.Idx → Elt F .f32)
    (hw : ∀ y, w y = (stg b).view.read (Elt F) gb y) (hl : Lanes d L a b ga gb 200) (hr : InRow d L fx a ga n) (hv : valid L n) :
    ∀ i ∈ (outM L n).view.set, ((outM L n).view.writes (Elt F) f0 [⟨Rect.whole _, w⟩]) i = Cert.Spec.row 21 fx i := by
  intro i hi
  obtain ⟨y, -, rfl⟩ := Finset.mem_map.mp hi
  have hy : (y 0).val < 3200 := (y 0).isLt
  have hp : pos L n + (y 0).val < 1600000 := by unfold pos; omega
  have e1 : (outM L n).view.writes (Elt F) f0 [⟨Rect.whole _, w⟩] ((outM L n).view.emb y) = w y := by
    have h := View.read_writes_cons_emb (outM L n).view f0 (Rect.whole _) w [] y
    rw [Rect.emb_whole_apply] at h
    exact (cast_eq _ _).symm.trans ((View.read_apply _ _).symm.trans h)
  have e2 : (stg b).view.read (Elt F) gb y = b.view.read (Elt F) gb (ix1 (⟨(y 0).val, by omega⟩ : Fin 25600)) :=
    congrArg (b.view.read (Elt F) gb) (stg_emb y (by omega))
  have e3 : a.view.read (Elt F) ga (ix2 (0 : Fin 8) (⟨(y 0).val, hy⟩ : Fin 3200))
      = (inM L n).view.read (Elt F) fx (ix2 (0 : Fin 1) (⟨(y 0).val, hy⟩ : Fin 3200)) :=
    (congrArg (a.view.read (Elt F) ga) (row_emb ⟨(y 0).val, hy⟩).symm).trans (hr _)
  have e4 : (inM L n).view.read (Elt F) fx (ix2 (0 : Fin 1) (⟨(y 0).val, hy⟩ : Fin 3200))
      = fx (ix2 (21 : Fin 22) (⟨pos L n + (y 0).val, hp⟩ : Fin 1600000)) :=
    ((View.read_apply _ _).trans (cast_eq _ _)).trans (congrArg fx (in_emb L n ⟨(y 0).val, hy⟩ hp))
  have e5 : Cert.Spec.row 21 fx ((outM L n).view.emb y) = fx (ix2 (21 : Fin 22) (⟨pos L n + (y 0).val, hp⟩ : Fin 1600000)) :=
    (congrArg (Cert.Spec.row 21 fx) (out_emb L n y hp)).trans (Cert.Spec.row_apply 21 fx _)
  exact e1.trans ((hw y).trans (e2.trans ((hl _ hy (by omega)).trans (e3.trans (e4.trans e5.symm)))))

end Cert.Proof.TileVal21

end
-- ==== Proof.TileK21.lean ====
/-
  One vector subcore's task of copy kernel 21 (counting from 0), run symbolically: the two fetch slots and two write-out slots
  between trips of the main loop (what each transfer in flight will hand back, and what the staging buffers hold), the
  invariant of the main loop and of the two lane-copy loops, and the task's run — from the tile's pieces of row 21 of
  the transposed argument and of the result to the same pieces with the result holding the row's elements.
-/
import proofs.«206869_g37898791420194_cont_8to1_b_558_20_alg».proof.Proof.TileK21Defs
import proofs.«206869_g37898791420194_cont_8to1_b_558_20_alg».proof.Proof.TileVal21
noncomputable section

namespace Cert.Proof.TileK21

open Cert.KernelIdeal Cert.KernelIdeal.Gen Cert.Proof.TileVal21
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 22) (Elt F) ℕ UU ℕ
local notation "xtW" => (Memref.whole Cert.KernelIdeal.main_v0_scv : Memref Cert.KernelIdeal.sig Kind.scVector Space.hbm Cert.KernelIdeal.S22x1600000 EltTy.f32)
local notation "oW" => (Memref.whole Cert.KernelIdeal.main_v22_scv : Memref Cert.KernelIdeal.sig Kind.scVector Space.hbm Cert.KernelIdeal.S1600000 EltTy.f32)
local notation "a4" => (Memref.whole Cert.KernelIdeal.cc21_scratch0 : Memref Cert.KernelIdeal.sig Kind.scVector Space.vmem Cert.KernelIdeal.S8x3200 EltTy.f32)
local notation "a5" => (Memref.whole Cert.KernelIdeal.cc21_scratch1 : Memref Cert.KernelIdeal.sig Kind.scVector Space.vmem Cert.KernelIdeal.S8x3200 EltTy.f32)
local notation "a6" => (Memref.whole Cert.KernelIdeal.cc21_scratch2 : Memref Cert.KernelIdeal.sig Kind.scVector Space.vmem Cert.KernelIdeal.S25600 EltTy.f32)
local notation "a7" => (Memref.whole Cert.KernelIdeal.cc21_scratch3 : Memref Cert.KernelIdeal.sig Kind.scVector Space.vmem Cert.KernelIdeal.S25600 EltTy.f32)

variable [FloatOps F]

section Tile

variable (d : Dev nD) (L : grid21.Coords)
variable (O : CellTallies nD τ sig (HIx 22)) (W : Waits sig (HIx 22))
variable (fx : Buf (Elt F) ((xtW).view.loc (thr d L)))

/-- Piece `n` of the result at its final contents. -/
abbrev oqPiece (n : ℕ) : sProp 𝕄 := (outM L n).view.loc (thr d L) ↦[(outM L n).view.set]{fullShare} (Cert.Spec.row 21 fx)
theorem oQ_pos {n : ℕ} (v : valid L n) : oQ d L fx n = oqPiece d L fx n := if_pos v
theorem oQ_neg {n : ℕ} (v : ¬ valid L n) : oQ d L fx n = iprop(emp) := if_neg v

/-- A fetch slot, remembering that the staging row it will hand back holds the piece. -/
def inSlotV (a : Memref sig .scVector .vmem S8x3200 .f32) (sm : DmaSem sig) (n : ℕ) : sProp 𝕄 :=
  if valid L n then
    iprop(∃ g, ⌜InRow d L fx a g n⌝ ∗ Transfers.Flight countersEmb (thr d L) (SemLoc.dma sm) (default : HIx 22) NN
      iprop((a.view.loc (thr d L) ↦{fullShare} g) ∗ xtPiece d L fx n))
  else iprop((∃ g, a.view.loc (thr d L) ↦{fullShare} g) ∗ semVal (thr d L, SemLoc.dma sm) 0)

/-- A write-out slot: the piece in flight will come back holding the row's elements. -/
def outSlotV (a : Memref sig .scVector .vmem S25600 .f32) (sm : DmaSem sig) (m : ℕ) : sProp 𝕄 :=
  if 2 ≤ m ∧ valid L (m - 2) then
    iprop(∃ g, Transfers.Flight countersEmb (thr d L) (SemLoc.dma sm) (default : HIx 22) NN
        iprop(oqPiece d L fx (m - 2) ∗ ((stg a).view.loc (thr d L) ↦[(stg a).view.set]{fullShare} g))
      ∗ (a.view.loc (thr d L) ↦[Finset.univ \ (stg a).view.set]{fullShare} g))
  else iprop((∃ g, a.view.loc (thr d L) ↦{fullShare} g) ∗ semVal (thr d L, SemLoc.dma sm) 0)

theorem inSlotV_pos {a : Memref sig .scVector .vmem S8x3200 .f32} {sm : DmaSem sig} {n : ℕ} (v : valid L n) :
    inSlotV d L fx a sm n = iprop(∃ g, ⌜InRow d L fx a g n⌝ ∗ Transfers.Flight countersEmb (thr d L) (SemLoc.dma sm) (default : HIx 22) NN
      iprop((a.view.loc (thr d L) ↦{fullShare} g) ∗ xtPiece d L fx n)) := by unfold inSlotV; rw [if_pos v]
theorem inSlotV_neg {a : Memref sig .scVector .vmem S8x3200 .f32} {sm : DmaSem sig} {n : ℕ} (v : ¬ valid L n) :
    inSlotV d L fx a sm n = iprop((∃ g, a.view.loc (thr d L) ↦{fullShare} g) ∗ semVal (thr d L, SemLoc.dma sm) 0) := by
  unfold inSlotV; rw [if_neg v]
theorem outSlotV_pos {a : Memref sig .scVector .vmem S25600 .f32} {sm : DmaSem sig} {m : ℕ} (h : 2 ≤ m ∧ valid L (m - 2)) :
    outSlotV d L fx a sm m = iprop(∃ g, Transfers.Flight countersEmb (thr d L) (SemLoc.dma sm) (default : HIx 22) NN
        iprop(oqPiece d L fx (m - 2) ∗ ((stg a).view.loc (thr d L) ↦[(stg a).view.set]{fullShare} g))
      ∗ (a.view.loc (thr d L) ↦[Finset.univ \ (stg a).view.set]{fullShare} g)) := by unfold outSlotV; rw [if_pos h]
theorem outSlotV_neg {a : Memref sig .scVector .vmem S25600 .f32} {sm : DmaSem sig} {m : ℕ} (h : ¬ (2 ≤ m ∧ valid L (m - 2))) :
    outSlotV d L fx a sm m = iprop((∃ g, a.view.loc (thr d L) ↦{fullShare} g) ∗ semVal (thr d L, SemLoc.dma sm) 0) := by
  unfold outSlotV; rw [if_neg h]

/-- A fetch just issued: the staging row will hold what the transfer reads, which is the piece. -/
theorem fl_inV {off : Fin 2 → ℕ} {n : ℕ} (h : off = ![21, pos L n]) (p : ∀ a, off a + S1x3200.size a ≤ S22x1600000.size a) (v : valid L n)
    (a : Memref sig .scVector .vmem S8x3200 .f32) (sm : DmaSem sig) :
    (iprop(∃ (gold : Buf (Elt F) (a.view.loc (thr d L))) (w : S1x3200.Idx → Elt F .f32),
        ⌜∀ y, w y = ((xtW).slice (Rect.unit (s := S22x1600000) off S1x3200.size p) (fun _ => rfl)).view.read (Elt F) fx y⌝
        ∗ Transfers.Flight countersEmb (thr d L) (SemLoc.dma sm) (default : HIx 22) NN
          iprop((a.view.loc (thr d L) ↦{fullShare} a.view.writes (Elt F) gold [⟨rowRect, w⟩])
            ∗ (((xtW).slice (Rect.unit (s := S22x1600000) off S1x3200.size p) (fun _ => rfl)).view.loc (thr d L)
                ↦[((xtW).slice (Rect.unit (s := S22x1600000) off S1x3200.size p) (fun _ => rfl)).view.set]{fullShare} fx))) : sProp 𝕄)
      ⊢ inSlotV d L fx a sm n := by
  subst h
  rw [inSlotV_pos d L fx v]
  iintro ⟨%gold, %w, %hw, H⟩
  iexists _
  isplitr
  · ipureintro; exact inRow_fetch d L fx a gold w n hw
  · iexact H

set_option maxHeartbeats 4000000 in
/-- A write-out just issued from a flat staging buffer whose first 3200 elements are the staging row, itself piece
    `n` of the argument row: the piece of the result will hold the row's elements. -/
theorem fl_outV {off : Fin 1 → ℕ} {n : ℕ} (h : off = ![pos L n]) (p : ∀ a, off a + S3200.size a ≤ S1600000.size a) (v : valid L n)
    (ar : Memref sig .scVector .vmem S8x3200 .f32) (a : Memref sig .scVector .vmem S25600 .f32) (sm : DmaSem sig)
    (f0 : Buf (Elt F) ((oW).view.loc (thr d L))) (ga : Buf (Elt F) (ar.view.loc (thr d L))) (gb : Buf (Elt F) (a.view.loc (thr d L)))
    (hl : Lanes d L ar a ga gb 200) (hr : InRow d L fx ar ga n) :
    (iprop(∃ (w : S3200.Idx → Elt F .f32),
        ⌜∀ y, w y = (stg a).view.read (Elt F) gb y⌝
        ∗ Transfers.Flight countersEmb (thr d L) (SemLoc.dma sm) (default : HIx 22) NN
          iprop((((oW).slice (Rect.unit (s := S1600000) off S3200.size p) (fun _ => rfl)).view.loc (thr d L)
                ↦[((oW).slice (Rect.unit (s := S1600000) off S3200.size p) (fun _ => rfl)).view.set]{fullShare}
                  (((oW).slice (Rect.unit (s := S1600000) off S3200.size p) (fun _ => rfl)).view.writes (Elt F) f0 [⟨Rect.whole _, w⟩]))
            ∗ ((stg a).view.loc (thr d L) ↦[(stg a).view.set]{fullShare} gb))
        ∗ (a.view.loc (thr d L) ↦[Finset.univ \ (stg a).view.set]{fullShare} gb)) : sProp 𝕄)
      ⊢ outSlotV d L fx a sm (n + 2) := by
  subst h
  rw [outSlotV_pos d L fx (m := n + 2) ⟨by omega, by simpa using v⟩]
  iintro ⟨%w, %hw, H, R⟩
  have hD : (iprop(((outM L n).view.loc (thr d L) ↦[(outM L n).view.set]{fullShare} ((outM L n).view.writes (Elt F) f0 [⟨Rect.whole _, w⟩]))
          ∗ ((stg a).view.loc (thr d L) ↦[(stg a).view.set]{fullShare} gb)) : sProp 𝕄)
      ⊢ iprop(oqPiece d L fx (n + 2 - 2) ∗ ((stg a).view.loc (thr d L) ↦[(stg a).view.set]{fullShare} gb)) := by
    rw [Nat.add_sub_cancel]
    have e : (((outM L n).view.loc (thr d L) ↦[(outM L n).view.set]{fullShare} ((outM L n).view.writes (Elt F) f0 [⟨Rect.whole _, w⟩])) : sProp 𝕄)
        = oqPiece d L fx n := pointsTo_congr (out_written d L fx ar a n ga gb f0 w hw hl hr v)
    iintro ⟨H1, H2⟩
    isplitl [H1]
    · iapply (Entails.of_eq e); iexact H1
    · iexact H2
  iexists gb
  isplitl [H]
  · iapply (Transfers.Flight_mono countersEmb (thr d L) hD); iexact H
  · iexact R

/-- The result pieces outside the slots before trip `t`: those already written hold the row, the others some contents. -/
def oMix (t n : ℕ) : sProp 𝕄 := if n + 2 < 2 * t then oQ d L fx n else oP (F := F) d L n
theorem oMix_lt {t n : ℕ} (h : n + 2 < 2 * t) : oMix d L fx t n = oQ d L fx n := if_pos h
theorem oMix_ge {t n : ℕ} (h : ¬ n + 2 < 2 * t) : oMix d L fx t n = oP (F := F) d L n := if_neg h
theorem oMix_core (k : ℕ) : bigSep (oCore k) (oMix d L fx k) = bigSep (oCore k) (oMix d L fx (k + 1)) :=
  bigSep_congr fun n hn => by
    have hn' : n + 2 ≠ 2 * k ∧ n + 2 ≠ 2 * k + 1 ∧ n ≠ 2 * k ∧ n ≠ 2 * k + 1 := by
      simp only [oCore, Finset.mem_filter, Finset.mem_range] at hn; exact hn.2
    by_cases h : n + 2 < 2 * k
    · rw [oMix_lt d L fx h, oMix_lt d L fx (by omega)]
    · rw [oMix_ge d L fx h, oMix_ge d L fx (by omega)]
theorem oMix_zero : bigSep (oSet 0) (oMix d L fx 0) = bigSep (Finset.range 18) (oP (F := F) d L) := by
  rw [oSet_zero]; exact bigSep_congr fun n _ => oMix_ge d L fx (by omega)
theorem oMix_end : bigSep (oSet 8) (oMix d L fx 8) = bigSep (oSet 8) (oQ d L fx) :=
  bigSep_congr fun n hn => by
    have hn' : n < 18 ∧ n + 2 ≠ 16 ∧ n + 2 ≠ 17 := by simpa only [oSet, Finset.mem_filter, Finset.mem_range] using hn
    by_cases h : n + 2 < 2 * 8
    · exact oMix_lt d L fx h
    · rw [oMix_ge d L fx h, oP_neg (F := F) d L (by unfold valid; omega), oQ_neg d L fx (by unfold valid; omega)]

/-- The lane-copy loops: before trip `j` the first 16·j elements of the flat staging buffer are the staging row's. -/
def laneV0 (g4 : Buf (Elt F) ((a4).view.loc (thr d L))) (j : ℕ) (_ : PUnit) : sProp 𝕄 :=
  iprop(((a4).view.loc (thr d L) ↦{fullShare} g4) ∗ (∃ g, ((a6).view.loc (thr d L) ↦{fullShare} g) ∗ ⌜Lanes d L a4 a6 g4 g j⌝))
def laneV1 (g5 : Buf (Elt F) ((a5).view.loc (thr d L))) (j : ℕ) (_ : PUnit) : sProp 𝕄 :=
  iprop(((a5).view.loc (thr d L) ↦{fullShare} g5) ∗ (∃ g, ((a7).view.loc (thr d L) ↦{fullShare} g) ∗ ⌜Lanes d L a5 a7 g5 g j⌝))

def invV (t : ℕ) (_ : PUnit) : sProp 𝕄 :=
  iprop(Transfers.MayWaits (thr d L) (none : HIx 22) O
    ∗ (∃ W', ⌜∀ p ∈ W', p ∈ W ∨ p.2 = none⌝ ∗ owes (thr d L) O W')
    ∗ bigSep (xSet t) (xP d L fx) ∗ bigSep (oSet t) (oMix d L fx t)
    ∗ inSlotV d L fx a4 cc21_scratch4.sem (2 * t) ∗ outSlotV d L fx a6 cc21_scratch6.sem (2 * t)
    ∗ inSlotV d L fx a5 cc21_scratch5.sem (2 * t + 1) ∗ outSlotV d L fx a7 cc21_scratch7.sem (2 * t + 1))

/-- After the last trip nothing of the argument row is in a slot: the tile holds all its pieces. -/
theorem xRange_end : bigSep (xSet 8) (xP d L fx) ⊢ bigSep (Finset.range 18) (xP d L fx) := by
  rw [two_out (s := Finset.range 18) (a := 16) (b := 17) (by decide) (by decide) (by decide),
    show ((Finset.range 18).erase 16).erase 17 = xSet 8 by decide]
  iintro H
  isplitr; · iapply (Entails.of_eq (xP_neg d L fx (n := 16) (by unfold valid; omega)).symm); iempintro
  isplitr; · iapply (Entails.of_eq (xP_neg d L fx (n := 17) (by unfold valid; omega)).symm); iempintro
  iexact H
omit [FloatOps F] in
theorem oRange_end (Φ : ℕ → sProp 𝕄) : bigSep (Finset.range 18) Φ = iprop(Φ 14 ∗ Φ 15 ∗ bigSep (oSet 8) Φ) := by
  rw [two_out (s := Finset.range 18) (a := 14) (b := 15) (by decide) (by decide) (by decide),
    show ((Finset.range 18).erase 14).erase 15 = oSet 8 by decide]

/-- What the run starts from and ends with, beside an untouched rest `R`. -/
def runPre (R : sProp 𝕄) : sProp 𝕄 :=
    iprop(Transfers.MayWaits (thr d L) (none : HIx 22) O ∗ owes (thr d L) O W
        ∗ bigSep (Finset.range 18) (xP d L fx) ∗ bigSep (Finset.range 18) (oP (F := F) d L)
        ∗ (∃ g, (a4).view.loc (thr d L) ↦{fullShare} g) ∗ (∃ g, (a5).view.loc (thr d L) ↦{fullShare} g)
        ∗ (∃ g, (a6).view.loc (thr d L) ↦{fullShare} g) ∗ (∃ g, (a7).view.loc (thr d L) ↦{fullShare} g)
        ∗ semVal (thr d L, SemLoc.dma cc21_scratch4.sem) 0 ∗ semVal (thr d L, SemLoc.dma cc21_scratch5.sem) 0
        ∗ semVal (thr d L, SemLoc.dma cc21_scratch6.sem) 0 ∗ semVal (thr d L, SemLoc.dma cc21_scratch7.sem) 0 ∗ R)
def runPost (R : sProp 𝕄) : sProp 𝕄 :=
    iprop(bigSep (Finset.range 18) (xP d L fx) ∗ bigSep (Finset.range 18) (oQ d L fx)
            ∗ (∃ g, (a4).view.loc (thr d L) ↦{fullShare} g) ∗ (∃ g, (a5).view.loc (thr d L) ↦{fullShare} g)
            ∗ (∃ g, (a6).view.loc (thr d L) ↦{fullShare} g) ∗ (∃ g, (a7).view.loc (thr d L) ↦{fullShare} g)
            ∗ semVal (thr d L, SemLoc.dma cc21_scratch4.sem) 0 ∗ semVal (thr d L, SemLoc.dma cc21_scratch5.sem) 0
            ∗ semVal (thr d L, SemLoc.dma cc21_scratch6.sem) 0 ∗ semVal (thr d L, SemLoc.dma cc21_scratch7.sem) 0
            ∗ (∃ W', ⌜∀ p ∈ W', p ∈ W ∨ p.2 = none⌝ ∗ owes (thr d L) O W') ∗ R)

set_option maxHeartbeats 16000000 in
/-- The task's run: from its pieces of the argument row and of the result, the four staging buffers and the four
    semaphores at zero, to the same with every piece of the result holding the row's elements. -/
theorem tile_run (R : sProp 𝕄) :
    runPre d L O W fx R
      ⊢ wp frame (wpE (defs₀ (F := F)) 𝒱₀ (thr d L) none) Set.univ
          (cc21_sc_group L xtW (Memref.isWhole_whole _) oW (Memref.isWhole_whole _) a4 (Memref.isWhole_whole _) a5 (Memref.isWhole_whole _)
            a6 (Memref.isWhole_whole _) a7 (Memref.isWhole_whole _) cc21_scratch4 cc21_scratch5 cc21_scratch6 cc21_scratch7)
          fun _ => runPost d L O W fx R := by
  unfold runPre runPost
  have v0 : valid L 0 := Or.inl (by omega)
  have v1 : valid L 1 := Or.inl (by omega)
  have k21_h7 : k21_cond7 L = 1#1 := cond7_iff L
  iintro ⟨#Hmw, HO, HX, HOut, ⟨%g4, H4⟩, ⟨%g5, H5⟩, ⟨%g6, H6⟩, ⟨%g7, H7⟩, Hs8, Hs9, Hs10, Hs11, HR⟩
  ihave HX := (Entails.of_eq (xRange_split d L fx v0 v1)) $$ HX
  icases HX with ⟨X0, X1, HX⟩
  ihave X0 := (Entails.of_eq (in_congr d L (off_in0 L v0).symm (in_inb L _) (k21_off1_inb L 0) fx)) $$ X0
  ihave X1 := (Entails.of_eq (in_congr d L (off_in1 L v1).symm (in_inb L _) (k21_off1_inb L 1) fx)) $$ X1
  sl_unfold [cc21_sc_group]
  sl_exec
  ihave S8 := (fl_inV d L fx (off_in0 L v0) (k21_off1_inb L 0) v0 a4 cc21_scratch4.sem) $$ [Hs8]
  · iexists _, _
    isplitr
    rotate_left
    · iexact Hs8
    ipureintro; intro y; rfl
  ihave S9 := (fl_inV d L fx (off_in1 L v1) (k21_off1_inb L 1) v1 a5 cc21_scratch5.sem) $$ [Hs9]
  · iexists _, _
    isplitr
    rotate_left
    · iexact Hs9
    ipureintro; intro y; rfl
  sl_for (invV d L O W fx) $$ [HO HX HOut S8 S9 H6 H7 Hs10 Hs11]
  case region =>
    intro (k : Fin k21_t1_loop.trips) acc
    have hk : k.val < 8 := Nat.lt_of_lt_of_eq k.isLt trips1
    unfold invV
    iintro ⟨#Hmw, ⟨%W', %hW', HO⟩, HX, HOut, S8, S10, S9, S11⟩
    by_cases hk1 : 1 ≤ k.val
    · by_cases v3 : valid L (2 * k.val + 3)
      · -- the generic trip: both drains, both pieces worked, both next fetches issued
        have hk6 : k.val ≤ 6 := by unfold valid at v3; omega
        have k21_h1 : k21_cond1 k = 1#1 := (cond1_iff k).mpr (by omega)
        have k21_h2 : k21_cond2 L k = 1#1 := cond2_iff L k
        have k21_h3 : k21_cond3 L k = 1#1 := (cond3_iff L k).mpr (by omega)
        have k21_h4 : k21_cond4 k = 1#1 := (cond4_iff k).mpr (by omega)
        have k21_h5 : k21_cond5 L k = 1#1 := (cond5_iff L k).mpr (by first | (unfold valid big at *; omega) | (unfold big at *; omega) | omega)
        have k21_h6 : k21_cond6 L k = 1#1 := (cond6_iff L k).mpr (by first | (unfold valid big at *; omega) | (unfold big at *; omega) | omega)
        have v0 : valid L (2 * k.val) := by unfold valid big at *; omega
        have v1 : valid L (2 * k.val + 1) := by unfold valid big at *; omega
        have v2 : valid L (2 * k.val + 2) := by unfold valid big at *; omega
        have v3' : valid L (2 * k.val + 3) := by unfold valid big at *; omega
        have hm0 : 2 ≤ 2 * k.val ∧ valid L (2 * k.val - 2) := ⟨by omega, by unfold valid big at *; omega⟩
        have hm1 : 2 ≤ 2 * k.val + 1 ∧ valid L (2 * k.val + 1 - 2) := ⟨by omega, by unfold valid big at *; omega⟩
        ihave S8 := (Entails.of_eq (inSlotV_pos d L fx v0)) $$ S8
        icases S8 with ⟨%g4, %hin4, F8⟩
        ihave S9 := (Entails.of_eq (inSlotV_pos d L fx v1)) $$ S9
        icases S9 with ⟨%g5, %hin5, F9⟩
        ihave S10 := (Entails.of_eq (outSlotV_pos d L fx hm0)) $$ S10
        icases S10 with ⟨%g6, F10, R6⟩
        ihave S11 := (Entails.of_eq (outSlotV_pos d L fx hm1)) $$ S11
        icases S11 with ⟨%g7, F11, R7⟩
        ihave HX := (Entails.of_eq (xSet_out (xP d L fx) k.val hk)) $$ HX
        icases HX with ⟨X2, X3, HX⟩
        ihave X2 := (Entails.of_eq (xP_pos d L fx v2)) $$ X2
        ihave X2 := (Entails.of_eq (in_congr d L (off_6 L k v2).symm (in_inb L _) (k21_off6_inb L k k21_h3) fx)) $$ X2
        ihave X3 := (Entails.of_eq (xP_pos d L fx v3')) $$ X3
        ihave X3 := (Entails.of_eq (in_congr d L (off_11 L k v3').symm (in_inb L _) (k21_off11_inb L k k21_h6) fx)) $$ X3
        ihave HOut := (Entails.of_eq (oSet_out (oMix d L fx k.val) k.val hk)) $$ HOut
        icases HOut with ⟨Y0, Y1, HOut⟩
        ihave Y0 := (Entails.of_eq ((oMix_ge d L fx (t := k.val) (n := 2 * k.val) (by omega)).trans (oP_pos (F := F) d L v0))) $$ Y0
        icases Y0 with ⟨%f0, Y0⟩
        ihave Y0 := (Entails.of_eq (out_congr d L (off_5 L k v0).symm (out_inb L _) (k21_off5_inb L k k21_h2) f0)) $$ Y0
        ihave Y1 := (Entails.of_eq ((oMix_ge d L fx (t := k.val) (n := 2 * k.val + 1) (by omega)).trans (oP_pos (F := F) d L v1))) $$ Y1
        icases Y1 with ⟨%f1, Y1⟩
        ihave Y1 := (Entails.of_eq (out_congr d L (off_10 L k v1).symm (out_inb L _) (k21_off10_inb L k k21_h5) f1)) $$ Y1
        sl_exec
        sl_for (laneV0 d L g4) $$ [F8_dst R6]
        case region =>
          intro (j : Fin k21_t2_loop.trips) _
          unfold laneV0
          iintro ⟨HA, %g, HB, %hl⟩
          sl_exec
          sl_step
          isplitl [HA]; · iexact HA
          iexists _; isplitl [HB]; · iexact HB
          ipureintro; exact lanes_step d L a4 a6 g4 g j _ _ hl
        · unfold laneV0
          isplitl [F8_dst]; · iexact F8_dst
          iexists _; isplitl [R6]; · iexact R6
          ipureintro; exact lanes_zero d L a4 a6 g4 _
        iintro %_ HI
        unfold laneV0
        icases HI with ⟨H4, %g6', H6, %hl6⟩
        have hl6 : Lanes d L a4 a6 g4 g6' 200 := Eq.mp (congrArg (Lanes d L a4 a6 g4 g6') trips2) hl6
        sl_exec
        sl_for (laneV1 d L g5) $$ [F9_dst R7]
        case region =>
          intro (j : Fin k21_t3_loop.trips) _
          unfold laneV1
          iintro ⟨HA, %g, HB, %hl⟩
          sl_exec
          sl_step
          isplitl [HA]; · iexact HA
          iexists _; isplitl [HB]; · iexact HB
          ipureintro; exact lanes_step' d L a5 a7 g5 g j _ _ hl
        · unfold laneV1
          isplitl [F9_dst]; · iexact F9_dst
          iexists _; isplitl [R7]; · iexact R7
          ipureintro; exact lanes_zero d L a5 a7 g5 _
        iintro %_ HI
        unfold laneV1
        icases HI with ⟨H5, %g7', H7, %hl7⟩
        have hl7 : Lanes d L a5 a7 g5 g7' 200 := Eq.mp (congrArg (Lanes d L a5 a7 g5 g7') trips3) hl7
        sl_exec
        sl_step
        isplitr; · iexact Hmw
        isplitl [HO]
        · iexists _; isplitr
          rotate_left
          · iexact HO
          ipureintro; intro p hp
          rcases Finset.mem_insert.mp hp with rfl | hp
          · exact .inr rfl
          rcases Finset.mem_insert.mp hp with rfl | hp
          · exact .inr rfl
          rcases Finset.mem_insert.mp hp with rfl | hp
          · exact .inr rfl
          rcases Finset.mem_insert.mp hp with rfl | hp
          · exact .inr rfl
          exact hW' p hp
        isplitl [HX F8_src F9_src]
        · iapply (Entails.of_eq (xSet_in (xP d L fx) k.val hk).symm)
          isplitl [F8_src]; · iapply (Entails.of_eq (xP_pos d L fx v0).symm); iexact F8_src
          isplitl [F9_src]; · iapply (Entails.of_eq (xP_pos d L fx v1).symm); iexact F9_src
          iexact HX
        isplitl [HOut F10_dst F11_dst]
        · iapply (Entails.of_eq (oSet_in (oMix d L fx (k.val + 1)) k.val hk (by omega)).symm)
          isplitl [F10_dst]; · iapply (Entails.of_eq ((oMix_lt d L fx (t := k.val + 1) (n := 2 * k.val - 2) (by omega)).trans (oQ_pos d L fx hm0.2)).symm); iexact F10_dst
          isplitl [F11_dst]
          · iapply (Entails.of_eq ((oMix_lt d L fx (t := k.val + 1) (n := 2 * k.val - 1) (by omega)).trans (oQ_pos d L fx (n := 2 * k.val - 1) (by have := hm1.2; rwa [show 2 * k.val + 1 - 2 = 2 * k.val - 1 by omega] at this))).symm)
            iapply (Entails.of_eq (congrArg (oqPiece d L fx) (show 2 * k.val + 1 - 2 = 2 * k.val - 1 by omega))); iexact F11_dst
          iapply (Entails.of_eq (oMix_core d L fx k.val)); iexact HOut
        isplitl [F8]
        · iapply (Entails.of_eq (congrArg (inSlotV d L fx a4 cc21_scratch4.sem) (show 2 * k.val + 2 = 2 * (k.val + 1) by ring)))
          iapply (fl_inV d L fx (off_6 L k v2) (k21_off6_inb L k k21_h3) v2 a4 cc21_scratch4.sem); iexists _, _
          isplitr
          rotate_left
          · iexact F8
          ipureintro; intro y; rfl
        isplitl [F10 H6]
        · iapply (Entails.of_eq (congrArg (outSlotV d L fx a6 cc21_scratch6.sem) (show 2 * k.val + 2 = 2 * (k.val + 1) by ring)))
          iapply (fl_outV d L fx (off_5 L k v0) (k21_off5_inb L k k21_h2) v0 a4 a6 cc21_scratch6.sem f0 g4 g6' hl6 hin4); iexists _
          isplitr
          rotate_left
          · isplitl [F10]; · iexact F10
            iexact H6
          ipureintro; intro y; rfl
        isplitl [F9]
        · iapply (Entails.of_eq (congrArg (inSlotV d L fx a5 cc21_scratch5.sem) (show 2 * k.val + 3 = 2 * (k.val + 1) + 1 by ring)))
          iapply (fl_inV d L fx (off_11 L k v3') (k21_off11_inb L k k21_h6) v3' a5 cc21_scratch5.sem); iexists _, _
          isplitr
          rotate_left
          · iexact F9
          ipureintro; intro y; rfl
        · iapply (Entails.of_eq (congrArg (outSlotV d L fx a7 cc21_scratch7.sem) (show 2 * k.val + 1 + 2 = 2 * (k.val + 1) + 1 by ring)))
          iapply (fl_outV d L fx (off_10 L k v1) (k21_off10_inb L k k21_h5) v1 a5 a7 cc21_scratch7.sem f1 g5 g7' hl7 hin5); iexists _
          isplitr
          rotate_left
          · isplitl [F11]; · iexact F11
            iexact H7
          ipureintro; intro y; rfl
      · by_cases h6 : k.val = 6
        · have hb : ¬ big L := fun hb => v3 (Or.inr ⟨by omega, hb⟩)
          -- trip 6 of a tile with fifteen pieces: no sixteenth piece to fetch
          have k21_h1 : k21_cond1 k = 1#1 := (cond1_iff k).mpr (by omega)
          have k21_h2 : k21_cond2 L k = 1#1 := cond2_iff L k
          have k21_h3 : k21_cond3 L k = 1#1 := (cond3_iff L k).mpr (by omega)
          have k21_h4 : k21_cond4 k = 1#1 := (cond4_iff k).mpr (by omega)
          have k21_h5 : k21_cond5 L k = 1#1 := (cond5_iff L k).mpr (by first | (unfold valid big at *; omega) | (unfold big at *; omega) | omega)
          have k21_h6 : ¬ k21_cond6 L k = 1#1 := fun h => absurd ((cond6_iff L k).mp h) (by first | (unfold valid big at *; omega) | (unfold big at *; omega) | omega)
          have v0 : valid L (2 * k.val) := by unfold valid big at *; omega
          have v1 : valid L (2 * k.val + 1) := by unfold valid big at *; omega
          have v2 : valid L (2 * k.val + 2) := by unfold valid big at *; omega
          have v3' : ¬ valid L (2 * k.val + 3) := by unfold valid big at *; omega
          have hm0 : 2 ≤ 2 * k.val ∧ valid L (2 * k.val - 2) := ⟨by omega, by unfold valid big at *; omega⟩
          have hm1 : 2 ≤ 2 * k.val + 1 ∧ valid L (2 * k.val + 1 - 2) := ⟨by omega, by unfold valid big at *; omega⟩
          ihave S8 := (Entails.of_eq (inSlotV_pos d L fx v0)) $$ S8
          icases S8 with ⟨%g4, %hin4, F8⟩
          ihave S9 := (Entails.of_eq (inSlotV_pos d L fx v1)) $$ S9
          icases S9 with ⟨%g5, %hin5, F9⟩
          ihave S10 := (Entails.of_eq (outSlotV_pos d L fx hm0)) $$ S10
          icases S10 with ⟨%g6, F10, R6⟩
          ihave S11 := (Entails.of_eq (outSlotV_pos d L fx hm1)) $$ S11
          icases S11 with ⟨%g7, F11, R7⟩
          ihave HX := (Entails.of_eq (xSet_out (xP d L fx) k.val hk)) $$ HX
          icases HX with ⟨X2, -, HX⟩
          ihave X2 := (Entails.of_eq (xP_pos d L fx v2)) $$ X2
          ihave X2 := (Entails.of_eq (in_congr d L (off_6 L k v2).symm (in_inb L _) (k21_off6_inb L k k21_h3) fx)) $$ X2
          ihave HOut := (Entails.of_eq (oSet_out (oMix d L fx k.val) k.val hk)) $$ HOut
          icases HOut with ⟨Y0, Y1, HOut⟩
          ihave Y0 := (Entails.of_eq ((oMix_ge d L fx (t := k.val) (n := 2 * k.val) (by omega)).trans (oP_pos (F := F) d L v0))) $$ Y0
          icases Y0 with ⟨%f0, Y0⟩
          ihave Y0 := (Entails.of_eq (out_congr d L (off_5 L k v0).symm (out_inb L _) (k21_off5_inb L k k21_h2) f0)) $$ Y0
          ihave Y1 := (Entails.of_eq ((oMix_ge d L fx (t := k.val) (n := 2 * k.val + 1) (by omega)).trans (oP_pos (F := F) d L v1))) $$ Y1
          icases Y1 with ⟨%f1, Y1⟩
          ihave Y1 := (Entails.of_eq (out_congr d L (off_10 L k v1).symm (out_inb L _) (k21_off10_inb L k k21_h5) f1)) $$ Y1
          sl_exec
          sl_for (laneV0 d L g4) $$ [F8_dst R6]
          case region =>
            intro (j : Fin k21_t2_loop.trips) _
            unfold laneV0
            iintro ⟨HA, %g, HB, %hl⟩
            sl_exec
            sl_step
            isplitl [HA]; · iexact HA
            iexists _; isplitl [HB]; · iexact HB
            ipureintro; exact lanes_step d L a4 a6 g4 g j _ _ hl
          · unfold laneV0
            isplitl [F8_dst]; · iexact F8_dst
            iexists _; isplitl [R6]; · iexact R6
            ipureintro; exact lanes_zero d L a4 a6 g4 _
          iintro %_ HI
          unfold laneV0
          icases HI with ⟨H4, %g6', H6, %hl6⟩
          have hl6 : Lanes d L a4 a6 g4 g6' 200 := Eq.mp (congrArg (Lanes d L a4 a6 g4 g6') trips2) hl6
          sl_exec
          sl_for (laneV1 d L g5) $$ [F9_dst R7]
          case region =>
            intro (j : Fin k21_t3_loop.trips) _
            unfold laneV1
            iintro ⟨HA, %g, HB, %hl⟩
            sl_exec
            sl_step
            isplitl [HA]; · iexact HA
            iexists _; isplitl [HB]; · iexact HB
            ipureintro; exact lanes_step' d L a5 a7 g5 g j _ _ hl
          · unfold laneV1
            isplitl [F9_dst]; · iexact F9_dst
            iexists _; isplitl [R7]; · iexact R7
            ipureintro; exact lanes_zero d L a5 a7 g5 _
          iintro %_ HI
          unfold laneV1
          icases HI with ⟨H5, %g7', H7, %hl7⟩
          have hl7 : Lanes d L a5 a7 g5 g7' 200 := Eq.mp (congrArg (Lanes d L a5 a7 g5 g7') trips3) hl7
          sl_exec
          sl_step
          isplitr; · iexact Hmw
          isplitl [HO]
          · iexists _; isplitr
            rotate_left
            · iexact HO
            ipureintro; intro p hp
            rcases Finset.mem_insert.mp hp with rfl | hp
            · exact .inr rfl
            rcases Finset.mem_insert.mp hp with rfl | hp
            · exact .inr rfl
            rcases Finset.mem_insert.mp hp with rfl | hp
            · exact .inr rfl
            rcases Finset.mem_insert.mp hp with rfl | hp
            · exact .inr rfl
            exact hW' p hp
          isplitl [HX F8_src F9_src]
          · iapply (Entails.of_eq (xSet_in (xP d L fx) k.val hk).symm)
            isplitl [F8_src]; · iapply (Entails.of_eq (xP_pos d L fx v0).symm); iexact F8_src
            isplitl [F9_src]; · iapply (Entails.of_eq (xP_pos d L fx v1).symm); iexact F9_src
            iexact HX
          isplitl [HOut F10_dst F11_dst]
          · iapply (Entails.of_eq (oSet_in (oMix d L fx (k.val + 1)) k.val hk (by omega)).symm)
            isplitl [F10_dst]; · iapply (Entails.of_eq ((oMix_lt d L fx (t := k.val + 1) (n := 2 * k.val - 2) (by omega)).trans (oQ_pos d L fx hm0.2)).symm); iexact F10_dst
            isplitl [F11_dst]
            · iapply (Entails.of_eq ((oMix_lt d L fx (t := k.val + 1) (n := 2 * k.val - 1) (by omega)).trans (oQ_pos d L fx (n := 2 * k.val - 1) (by have := hm1.2; rwa [show 2 * k.val + 1 - 2 = 2 * k.val - 1 by omega] at this))).symm)
              iapply (Entails.of_eq (congrArg (oqPiece d L fx) (show 2 * k.val + 1 - 2 = 2 * k.val - 1 by omega))); iexact F11_dst
            iapply (Entails.of_eq (oMix_core d L fx k.val)); iexact HOut
          isplitl [F8]
          · iapply (Entails.of_eq (congrArg (inSlotV d L fx a4 cc21_scratch4.sem) (show 2 * k.val + 2 = 2 * (k.val + 1) by ring)))
            iapply (fl_inV d L fx (off_6 L k v2) (k21_off6_inb L k k21_h3) v2 a4 cc21_scratch4.sem); iexists _, _
            isplitr
            rotate_left
            · iexact F8
            ipureintro; intro y; rfl
          isplitl [F10 H6]
          · iapply (Entails.of_eq (congrArg (outSlotV d L fx a6 cc21_scratch6.sem) (show 2 * k.val + 2 = 2 * (k.val + 1) by ring)))
            iapply (fl_outV d L fx (off_5 L k v0) (k21_off5_inb L k k21_h2) v0 a4 a6 cc21_scratch6.sem f0 g4 g6' hl6 hin4); iexists _
            isplitr
            rotate_left
            · isplitl [F10]; · iexact F10
              iexact H6
            ipureintro; intro y; rfl
          isplitl [H5 F9]
          · iapply (Entails.of_eq (congrArg (inSlotV d L fx a5 cc21_scratch5.sem) (show 2 * k.val + 3 = 2 * (k.val + 1) + 1 by ring)))
            iapply (Entails.of_eq (inSlotV_neg d L fx v3').symm)
            isplitl [H5]; · iexists _; iexact H5
            iexact F9
          · iapply (Entails.of_eq (congrArg (outSlotV d L fx a7 cc21_scratch7.sem) (show 2 * k.val + 1 + 2 = 2 * (k.val + 1) + 1 by ring)))
            iapply (fl_outV d L fx (off_10 L k v1) (k21_off10_inb L k k21_h5) v1 a5 a7 cc21_scratch7.sem f1 g5 g7' hl7 hin5); iexists _
            isplitr
            rotate_left
            · isplitl [F11]; · iexact F11
              iexact H7
            ipureintro; intro y; rfl
        · have h7 : k.val = 7 := by unfold valid at v3; omega
          by_cases hb : big L
          · -- the last trip of a tile with sixteen pieces: nothing more to fetch
            have k21_h1 : k21_cond1 k = 1#1 := (cond1_iff k).mpr (by omega)
            have k21_h2 : k21_cond2 L k = 1#1 := cond2_iff L k
            have k21_h3 : ¬ k21_cond3 L k = 1#1 := fun h => absurd ((cond3_iff L k).mp h) (by omega)
            have k21_h4 : k21_cond4 k = 1#1 := (cond4_iff k).mpr (by omega)
            have k21_h5 : k21_cond5 L k = 1#1 := (cond5_iff L k).mpr (by first | (unfold valid big at *; omega) | (unfold big at *; omega) | omega)
            have k21_h6 : ¬ k21_cond6 L k = 1#1 := fun h => absurd ((cond6_iff L k).mp h) (by first | (unfold valid big at *; omega) | (unfold big at *; omega) | omega)
            have v0 : valid L (2 * k.val) := by unfold valid big at *; omega
            have v1 : valid L (2 * k.val + 1) := by unfold valid big at *; omega
            have v2 : ¬ valid L (2 * k.val + 2) := by unfold valid big at *; omega
            have v3' : ¬ valid L (2 * k.val + 3) := by unfold valid big at *; omega
            have hm0 : 2 ≤ 2 * k.val ∧ valid L (2 * k.val - 2) := ⟨by omega, by unfold valid big at *; omega⟩
            have hm1 : 2 ≤ 2 * k.val + 1 ∧ valid L (2 * k.val + 1 - 2) := ⟨by omega, by unfold valid big at *; omega⟩
            ihave S8 := (Entails.of_eq (inSlotV_pos d L fx v0)) $$ S8
            icases S8 with ⟨%g4, %hin4, F8⟩
            ihave S9 := (Entails.of_eq (inSlotV_pos d L fx v1)) $$ S9
            icases S9 with ⟨%g5, %hin5, F9⟩
            ihave S10 := (Entails.of_eq (outSlotV_pos d L fx hm0)) $$ S10
            icases S10 with ⟨%g6, F10, R6⟩
            ihave S11 := (Entails.of_eq (outSlotV_pos d L fx hm1)) $$ S11
            icases S11 with ⟨%g7, F11, R7⟩
            ihave HX := (Entails.of_eq (xSet_out (xP d L fx) k.val hk)) $$ HX
            icases HX with ⟨-, -, HX⟩
            ihave HOut := (Entails.of_eq (oSet_out (oMix d L fx k.val) k.val hk)) $$ HOut
            icases HOut with ⟨Y0, Y1, HOut⟩
            ihave Y0 := (Entails.of_eq ((oMix_ge d L fx (t := k.val) (n := 2 * k.val) (by omega)).trans (oP_pos (F := F) d L v0))) $$ Y0
            icases Y0 with ⟨%f0, Y0⟩
            ihave Y0 := (Entails.of_eq (out_congr d L (off_5 L k v0).symm (out_inb L _) (k21_off5_inb L k k21_h2) f0)) $$ Y0
            ihave Y1 := (Entails.of_eq ((oMix_ge d L fx (t := k.val) (n := 2 * k.val + 1) (by omega)).trans (oP_pos (F := F) d L v1))) $$ Y1
            icases Y1 with ⟨%f1, Y1⟩
            ihave Y1 := (Entails.of_eq (out_congr d L (off_10 L k v1).symm (out_inb L _) (k21_off10_inb L k k21_h5) f1)) $$ Y1
            sl_exec
            sl_for (laneV0 d L g4) $$ [F8_dst R6]
            case region =>
              intro (j : Fin k21_t2_loop.trips) _
              unfold laneV0
              iintro ⟨HA, %g, HB, %hl⟩
              sl_exec
              sl_step
              isplitl [HA]; · iexact HA
              iexists _; isplitl [HB]; · iexact HB
              ipureintro; exact lanes_step d L a4 a6 g4 g j _ _ hl
            · unfold laneV0
              isplitl [F8_dst]; · iexact F8_dst
              iexists _; isplitl [R6]; · iexact R6
              ipureintro; exact lanes_zero d L a4 a6 g4 _
            iintro %_ HI
            unfold laneV0
            icases HI with ⟨H4, %g6', H6, %hl6⟩
            have hl6 : Lanes d L a4 a6 g4 g6' 200 := Eq.mp (congrArg (Lanes d L a4 a6 g4 g6') trips2) hl6
            sl_exec
            sl_for (laneV1 d L g5) $$ [F9_dst R7]
            case region =>
              intro (j : Fin k21_t3_loop.trips) _
              unfold laneV1
              iintro ⟨HA, %g, HB, %hl⟩
              sl_exec
              sl_step
              isplitl [HA]; · iexact HA
              iexists _; isplitl [HB]; · iexact HB
              ipureintro; exact lanes_step' d L a5 a7 g5 g j _ _ hl
            · unfold laneV1
              isplitl [F9_dst]; · iexact F9_dst
              iexists _; isplitl [R7]; · iexact R7
              ipureintro; exact lanes_zero d L a5 a7 g5 _
            iintro %_ HI
            unfold laneV1
            icases HI with ⟨H5, %g7', H7, %hl7⟩
            have hl7 : Lanes d L a5 a7 g5 g7' 200 := Eq.mp (congrArg (Lanes d L a5 a7 g5 g7') trips3) hl7
            sl_exec
            sl_step
            isplitr; · iexact Hmw
            isplitl [HO]
            · iexists _; isplitr
              rotate_left
              · iexact HO
              ipureintro; intro p hp
              rcases Finset.mem_insert.mp hp with rfl | hp
              · exact .inr rfl
              rcases Finset.mem_insert.mp hp with rfl | hp
              · exact .inr rfl
              rcases Finset.mem_insert.mp hp with rfl | hp
              · exact .inr rfl
              rcases Finset.mem_insert.mp hp with rfl | hp
              · exact .inr rfl
              exact hW' p hp
            isplitl [HX F8_src F9_src]
            · iapply (Entails.of_eq (xSet_in (xP d L fx) k.val hk).symm)
              isplitl [F8_src]; · iapply (Entails.of_eq (xP_pos d L fx v0).symm); iexact F8_src
              isplitl [F9_src]; · iapply (Entails.of_eq (xP_pos d L fx v1).symm); iexact F9_src
              iexact HX
            isplitl [HOut F10_dst F11_dst]
            · iapply (Entails.of_eq (oSet_in (oMix d L fx (k.val + 1)) k.val hk (by omega)).symm)
              isplitl [F10_dst]; · iapply (Entails.of_eq ((oMix_lt d L fx (t := k.val + 1) (n := 2 * k.val - 2) (by omega)).trans (oQ_pos d L fx hm0.2)).symm); iexact F10_dst
              isplitl [F11_dst]
              · iapply (Entails.of_eq ((oMix_lt d L fx (t := k.val + 1) (n := 2 * k.val - 1) (by omega)).trans (oQ_pos d L fx (n := 2 * k.val - 1) (by have := hm1.2; rwa [show 2 * k.val + 1 - 2 = 2 * k.val - 1 by omega] at this))).symm)
                iapply (Entails.of_eq (congrArg (oqPiece d L fx) (show 2 * k.val + 1 - 2 = 2 * k.val - 1 by omega))); iexact F11_dst
              iapply (Entails.of_eq (oMix_core d L fx k.val)); iexact HOut
            isplitl [H4 F8]
            · iapply (Entails.of_eq (congrArg (inSlotV d L fx a4 cc21_scratch4.sem) (show 2 * k.val + 2 = 2 * (k.val + 1) by ring)))
              iapply (Entails.of_eq (inSlotV_neg d L fx v2).symm)
              isplitl [H4]; · iexists _; iexact H4
              iexact F8
            isplitl [F10 H6]
            · iapply (Entails.of_eq (congrArg (outSlotV d L fx a6 cc21_scratch6.sem) (show 2 * k.val + 2 = 2 * (k.val + 1) by ring)))
              iapply (fl_outV d L fx (off_5 L k v0) (k21_off5_inb L k k21_h2) v0 a4 a6 cc21_scratch6.sem f0 g4 g6' hl6 hin4); iexists _
              isplitr
              rotate_left
              · isplitl [F10]; · iexact F10
                iexact H6
              ipureintro; intro y; rfl
            isplitl [H5 F9]
            · iapply (Entails.of_eq (congrArg (inSlotV d L fx a5 cc21_scratch5.sem) (show 2 * k.val + 3 = 2 * (k.val + 1) + 1 by ring)))
              iapply (Entails.of_eq (inSlotV_neg d L fx v3').symm)
              isplitl [H5]; · iexists _; iexact H5
              iexact F9
            · iapply (Entails.of_eq (congrArg (outSlotV d L fx a7 cc21_scratch7.sem) (show 2 * k.val + 1 + 2 = 2 * (k.val + 1) + 1 by ring)))
              iapply (fl_outV d L fx (off_10 L k v1) (k21_off10_inb L k k21_h5) v1 a5 a7 cc21_scratch7.sem f1 g5 g7' hl7 hin5); iexists _
              isplitr
              rotate_left
              · isplitl [F11]; · iexact F11
                iexact H7
              ipureintro; intro y; rfl
          · -- the last trip of a tile with fifteen pieces: the second slot only drains
            have k21_h1 : k21_cond1 k = 1#1 := (cond1_iff k).mpr (by omega)
            have k21_h2 : k21_cond2 L k = 1#1 := cond2_iff L k
            have k21_h3 : ¬ k21_cond3 L k = 1#1 := fun h => absurd ((cond3_iff L k).mp h) (by omega)
            have k21_h4 : k21_cond4 k = 1#1 := (cond4_iff k).mpr (by omega)
            have k21_h5 : ¬ k21_cond5 L k = 1#1 := fun h => absurd ((cond5_iff L k).mp h) (by first | (unfold valid big at *; omega) | (unfold big at *; omega) | omega)
            have k21_h6 : ¬ k21_cond6 L k = 1#1 := fun h => absurd ((cond6_iff L k).mp h) (by first | (unfold valid big at *; omega) | (unfold big at *; omega) | omega)
            have v0 : valid L (2 * k.val) := by unfold valid big at *; omega
            have v1 : ¬ valid L (2 * k.val + 1) := by unfold valid big at *; omega
            have v2 : ¬ valid L (2 * k.val + 2) := by unfold valid big at *; omega
            have v3' : ¬ valid L (2 * k.val + 3) := by unfold valid big at *; omega
            have hm0 : 2 ≤ 2 * k.val ∧ valid L (2 * k.val - 2) := ⟨by omega, by unfold valid big at *; omega⟩
            have hm1 : 2 ≤ 2 * k.val + 1 ∧ valid L (2 * k.val + 1 - 2) := ⟨by omega, by unfold valid big at *; omega⟩
            ihave S8 := (Entails.of_eq (inSlotV_pos d L fx v0)) $$ S8
            icases S8 with ⟨%g4, %hin4, F8⟩
            ihave S9 := (Entails.of_eq (inSlotV_neg d L fx v1)) $$ S9
            icases S9 with ⟨⟨%g5, H5⟩, F9⟩
            ihave S10 := (Entails.of_eq (outSlotV_pos d L fx hm0)) $$ S10
            icases S10 with ⟨%g6, F10, R6⟩
            ihave S11 := (Entails.of_eq (outSlotV_pos d L fx hm1)) $$ S11
            icases S11 with ⟨%g7, F11, R7⟩
            ihave HX := (Entails.of_eq (xSet_out (xP d L fx) k.val hk)) $$ HX
            icases HX with ⟨-, -, HX⟩
            ihave HOut := (Entails.of_eq (oSet_out (oMix d L fx k.val) k.val hk)) $$ HOut
            icases HOut with ⟨Y0, -, HOut⟩
            ihave Y0 := (Entails.of_eq ((oMix_ge d L fx (t := k.val) (n := 2 * k.val) (by omega)).trans (oP_pos (F := F) d L v0))) $$ Y0
            icases Y0 with ⟨%f0, Y0⟩
            ihave Y0 := (Entails.of_eq (out_congr d L (off_5 L k v0).symm (out_inb L _) (k21_off5_inb L k k21_h2) f0)) $$ Y0
            sl_exec
            sl_for (laneV0 d L g4) $$ [F8_dst R6]
            case region =>
              intro (j : Fin k21_t2_loop.trips) _
              unfold laneV0
              iintro ⟨HA, %g, HB, %hl⟩
              sl_exec
              sl_step
              isplitl [HA]; · iexact HA
              iexists _; isplitl [HB]; · iexact HB
              ipureintro; exact lanes_step d L a4 a6 g4 g j _ _ hl
            · unfold laneV0
              isplitl [F8_dst]; · iexact F8_dst
              iexists _; isplitl [R6]; · iexact R6
              ipureintro; exact lanes_zero d L a4 a6 g4 _
            iintro %_ HI
            unfold laneV0
            icases HI with ⟨H4, %g6', H6, %hl6⟩
            have hl6 : Lanes d L a4 a6 g4 g6' 200 := Eq.mp (congrArg (Lanes d L a4 a6 g4 g6') trips2) hl6
            sl_exec
            sl_step
            isplitr; · iexact Hmw
            isplitl [HO]
            · iexists _; isplitr
              rotate_left
              · iexact HO
              ipureintro; intro p hp
              rcases Finset.mem_insert.mp hp with rfl | hp
              · exact .inr rfl
              rcases Finset.mem_insert.mp hp with rfl | hp
              · exact .inr rfl
              rcases Finset.mem_insert.mp hp with rfl | hp
              · exact .inr rfl
              exact hW' p hp
            isplitl [HX F8_src]
            · iapply (Entails.of_eq (xSet_in (xP d L fx) k.val hk).symm)
              isplitl [F8_src]; · iapply (Entails.of_eq (xP_pos d L fx v0).symm); iexact F8_src
              isplitr; · iapply (Entails.of_eq (xP_neg d L fx v1).symm); iempintro
              iexact HX
            isplitl [HOut F10_dst F11_dst]
            · iapply (Entails.of_eq (oSet_in (oMix d L fx (k.val + 1)) k.val hk (by omega)).symm)
              isplitl [F10_dst]; · iapply (Entails.of_eq ((oMix_lt d L fx (t := k.val + 1) (n := 2 * k.val - 2) (by omega)).trans (oQ_pos d L fx hm0.2)).symm); iexact F10_dst
              isplitl [F11_dst]
              · iapply (Entails.of_eq ((oMix_lt d L fx (t := k.val + 1) (n := 2 * k.val - 1) (by omega)).trans (oQ_pos d L fx (n := 2 * k.val - 1) (by have := hm1.2; rwa [show 2 * k.val + 1 - 2 = 2 * k.val - 1 by omega] at this))).symm)
                iapply (Entails.of_eq (congrArg (oqPiece d L fx) (show 2 * k.val + 1 - 2 = 2 * k.val - 1 by omega))); iexact F11_dst
              iapply (Entails.of_eq (oMix_core d L fx k.val)); iexact HOut
            isplitl [H4 F8]
            · iapply (Entails.of_eq (congrArg (inSlotV d L fx a4 cc21_scratch4.sem) (show 2 * k.val + 2 = 2 * (k.val + 1) by ring)))
              iapply (Entails.of_eq (inSlotV_neg d L fx v2).symm)
              isplitl [H4]; · iexists _; iexact H4
              iexact F8
            isplitl [F10 H6]
            · iapply (Entails.of_eq (congrArg (outSlotV d L fx a6 cc21_scratch6.sem) (show 2 * k.val + 2 = 2 * (k.val + 1) by ring)))
              iapply (fl_outV d L fx (off_5 L k v0) (k21_off5_inb L k k21_h2) v0 a4 a6 cc21_scratch6.sem f0 g4 g6' hl6 hin4); iexists _
              isplitr
              rotate_left
              · isplitl [F10]; · iexact F10
                iexact H6
              ipureintro; intro y; rfl
            isplitl [H5 F9]
            · iapply (Entails.of_eq (congrArg (inSlotV d L fx a5 cc21_scratch5.sem) (show 2 * k.val + 3 = 2 * (k.val + 1) + 1 by ring)))
              iapply (Entails.of_eq (inSlotV_neg d L fx v3').symm)
              isplitl [H5]; · iexists _; iexact H5
              iexact F9
            · iapply (Entails.of_eq (outSlotV_neg d L fx (m := 2 * (k.val + 1) + 1) (by intro h; apply v1; have := h.2; rwa [show 2 * (k.val + 1) + 1 - 2 = 2 * k.val + 1 by omega] at this)).symm)
              isplitl [R7]; · iexists _; iexact R7
              iexact F11
    · have hk0 : k.val = 0 := by omega
      -- the first trip: nothing to drain
      have k21_h1 : ¬ k21_cond1 k = 1#1 := fun h => absurd ((cond1_iff k).mp h) (by omega)
      have k21_h2 : k21_cond2 L k = 1#1 := cond2_iff L k
      have k21_h3 : k21_cond3 L k = 1#1 := (cond3_iff L k).mpr (by omega)
      have k21_h4 : ¬ k21_cond4 k = 1#1 := fun h => absurd ((cond4_iff k).mp h) (by omega)
      have k21_h5 : k21_cond5 L k = 1#1 := (cond5_iff L k).mpr (by first | (unfold valid big at *; omega) | (unfold big at *; omega) | omega)
      have k21_h6 : k21_cond6 L k = 1#1 := (cond6_iff L k).mpr (by first | (unfold valid big at *; omega) | (unfold big at *; omega) | omega)
      have v0 : valid L (2 * k.val) := by unfold valid big at *; omega
      have v1 : valid L (2 * k.val + 1) := by unfold valid big at *; omega
      have v2 : valid L (2 * k.val + 2) := by unfold valid big at *; omega
      have v3' : valid L (2 * k.val + 3) := by unfold valid big at *; omega
      have hm0 : ¬ (2 ≤ 2 * k.val ∧ valid L (2 * k.val - 2)) := by omega
      have hm1 : ¬ (2 ≤ 2 * k.val + 1 ∧ valid L (2 * k.val + 1 - 2)) := by omega
      ihave S8 := (Entails.of_eq (inSlotV_pos d L fx v0)) $$ S8
      icases S8 with ⟨%g4, %hin4, F8⟩
      ihave S9 := (Entails.of_eq (inSlotV_pos d L fx v1)) $$ S9
      icases S9 with ⟨%g5, %hin5, F9⟩
      ihave S10 := (Entails.of_eq (outSlotV_neg d L fx hm0)) $$ S10
      icases S10 with ⟨⟨%g6, R6⟩, F10⟩
      ihave S11 := (Entails.of_eq (outSlotV_neg d L fx hm1)) $$ S11
      icases S11 with ⟨⟨%g7, R7⟩, F11⟩
      ihave HX := (Entails.of_eq (xSet_out (xP d L fx) k.val hk)) $$ HX
      icases HX with ⟨X2, X3, HX⟩
      ihave X2 := (Entails.of_eq (xP_pos d L fx v2)) $$ X2
      ihave X2 := (Entails.of_eq (in_congr d L (off_6 L k v2).symm (in_inb L _) (k21_off6_inb L k k21_h3) fx)) $$ X2
      ihave X3 := (Entails.of_eq (xP_pos d L fx v3')) $$ X3
      ihave X3 := (Entails.of_eq (in_congr d L (off_11 L k v3').symm (in_inb L _) (k21_off11_inb L k k21_h6) fx)) $$ X3
      ihave HOut := (Entails.of_eq (oSet_out (oMix d L fx k.val) k.val hk)) $$ HOut
      icases HOut with ⟨Y0, Y1, HOut⟩
      ihave Y0 := (Entails.of_eq ((oMix_ge d L fx (t := k.val) (n := 2 * k.val) (by omega)).trans (oP_pos (F := F) d L v0))) $$ Y0
      icases Y0 with ⟨%f0, Y0⟩
      ihave Y0 := (Entails.of_eq (out_congr d L (off_5 L k v0).symm (out_inb L _) (k21_off5_inb L k k21_h2) f0)) $$ Y0
      ihave Y1 := (Entails.of_eq ((oMix_ge d L fx (t := k.val) (n := 2 * k.val + 1) (by omega)).trans (oP_pos (F := F) d L v1))) $$ Y1
      icases Y1 with ⟨%f1, Y1⟩
      ihave Y1 := (Entails.of_eq (out_congr d L (off_10 L k v1).symm (out_inb L _) (k21_off10_inb L k k21_h5) f1)) $$ Y1
      sl_exec
      sl_for (laneV0 d L g4) $$ [F8_dst R6]
      case region =>
        intro (j : Fin k21_t2_loop.trips) _
        unfold laneV0
        iintro ⟨HA, %g, HB, %hl⟩
        sl_exec
        sl_step
        isplitl [HA]; · iexact HA
        iexists _; isplitl [HB]; · iexact HB
        ipureintro; exact lanes_step d L a4 a6 g4 g j _ _ hl
      · unfold laneV0
        isplitl [F8_dst]; · iexact F8_dst
        iexists _; isplitl [R6]; · iexact R6
        ipureintro; exact lanes_zero d L a4 a6 g4 _
      iintro %_ HI
      unfold laneV0
      icases HI with ⟨H4, %g6', H6, %hl6⟩
      have hl6 : Lanes d L a4 a6 g4 g6' 200 := Eq.mp (congrArg (Lanes d L a4 a6 g4 g6') trips2) hl6
      sl_exec
      sl_for (laneV1 d L g5) $$ [F9_dst R7]
      case region =>
        intro (j : Fin k21_t3_loop.trips) _
        unfold laneV1
        iintro ⟨HA, %g, HB, %hl⟩
        sl_exec
        sl_step
        isplitl [HA]; · iexact HA
        iexists _; isplitl [HB]; · iexact HB
        ipureintro; exact lanes_step' d L a5 a7 g5 g j _ _ hl
      · unfold laneV1
        isplitl [F9_dst]; · iexact F9_dst
        iexists _; isplitl [R7]; · iexact R7
        ipureintro; exact lanes_zero d L a5 a7 g5 _
      iintro %_ HI
      unfold laneV1
      icases HI with ⟨H5, %g7', H7, %hl7⟩
      have hl7 : Lanes d L a5 a7 g5 g7' 200 := Eq.mp (congrArg (Lanes d L a5 a7 g5 g7') trips3) hl7
      sl_exec
      sl_step
      isplitr; · iexact Hmw
      isplitl [HO]
      · iexists _; isplitr
        rotate_left
        · iexact HO
        ipureintro; intro p hp
        rcases Finset.mem_insert.mp hp with rfl | hp
        · exact .inr rfl
        rcases Finset.mem_insert.mp hp with rfl | hp
        · exact .inr rfl
        exact hW' p hp
      isplitl [HX F8_src F9_src]
      · iapply (Entails.of_eq (xSet_in (xP d L fx) k.val hk).symm)
        isplitl [F8_src]; · iapply (Entails.of_eq (xP_pos d L fx v0).symm); iexact F8_src
        isplitl [F9_src]; · iapply (Entails.of_eq (xP_pos d L fx v1).symm); iexact F9_src
        iexact HX
      isplitl [HOut]
      · iapply (Entails.of_eq (congrArg (fun s => bigSep s (oMix d L fx (k.val + 1))) (show oCore k.val = oSet (k.val + 1) by rw [hk0]; decide)))
        iapply (Entails.of_eq (oMix_core d L fx k.val)); iexact HOut
      isplitl [F8]
      · iapply (Entails.of_eq (congrArg (inSlotV d L fx a4 cc21_scratch4.sem) (show 2 * k.val + 2 = 2 * (k.val + 1) by ring)))
        iapply (fl_inV d L fx (off_6 L k v2) (k21_off6_inb L k k21_h3) v2 a4 cc21_scratch4.sem); iexists _, _
        isplitr
        rotate_left
        · iexact F8
        ipureintro; intro y; rfl
      isplitl [F10 H6]
      · iapply (Entails.of_eq (congrArg (outSlotV d L fx a6 cc21_scratch6.sem) (show 2 * k.val + 2 = 2 * (k.val + 1) by ring)))
        iapply (fl_outV d L fx (off_5 L k v0) (k21_off5_inb L k k21_h2) v0 a4 a6 cc21_scratch6.sem f0 g4 g6' hl6 hin4); iexists _
        isplitr
        rotate_left
        · isplitl [F10]; · iexact F10
          iexact H6
        ipureintro; intro y; rfl
      isplitl [F9]
      · iapply (Entails.of_eq (congrArg (inSlotV d L fx a5 cc21_scratch5.sem) (show 2 * k.val + 3 = 2 * (k.val + 1) + 1 by ring)))
        iapply (fl_inV d L fx (off_11 L k v3') (k21_off11_inb L k k21_h6) v3' a5 cc21_scratch5.sem); iexists _, _
        isplitr
        rotate_left
        · iexact F9
        ipureintro; intro y; rfl
      · iapply (Entails.of_eq (congrArg (outSlotV d L fx a7 cc21_scratch7.sem) (show 2 * k.val + 1 + 2 = 2 * (k.val + 1) + 1 by ring)))
        iapply (fl_outV d L fx (off_10 L k v1) (k21_off10_inb L k k21_h5) v1 a5 a7 cc21_scratch7.sem f1 g5 g7' hl7 hin5); iexists _
        isplitr
        rotate_left
        · isplitl [F11]; · iexact F11
          iexact H7
        ipureintro; intro y; rfl
  · unfold invV
    isplitr; · iexact Hmw
    isplitl [HO]
    · iexists W; isplitr
      · ipureintro; exact fun p hp => .inl hp
      · iexact HO
    isplitl [HX]; · iexact HX
    isplitl [HOut]; · iapply (Entails.of_eq (oMix_zero d L fx).symm); iexact HOut
    isplitl [S8]; · iexact S8
    isplitl [H6 Hs10]
    · rw [outSlotV_neg d L fx (by omega)]; isplitl [H6]; · iexists _; iexact H6
      iexact Hs10
    isplitl [S9]; · iexact S9
    rw [outSlotV_neg d L fx (by omega)]; isplitl [H7]; · iexists _; iexact H7
    iexact Hs11
  iintro %acc' HI
  ihave HI := (Entails.of_eq (congrArg (fun t => invV d L O W fx t acc') trips1)) $$ HI
  unfold invV
  icases HI with ⟨-, ⟨%W', %hW', HO⟩, HX, HOut, S8, S10, S9, S11⟩
  have nv16 : ¬ valid L (2 * 8) := by unfold valid; omega
  have nv17 : ¬ valid L (2 * 8 + 1) := by unfold valid; omega
  have hm14 : 2 ≤ 2 * 8 ∧ valid L (2 * 8 - 2) := ⟨by omega, Or.inl (by omega)⟩
  ihave S8 := (Entails.of_eq (inSlotV_neg d L fx nv16)) $$ S8
  icases S8 with ⟨⟨%g4', H4⟩, Hs8⟩
  ihave S9 := (Entails.of_eq (inSlotV_neg d L fx nv17)) $$ S9
  icases S9 with ⟨⟨%g5', H5⟩, Hs9⟩
  ihave S10 := (Entails.of_eq (outSlotV_pos d L fx hm14)) $$ S10
  icases S10 with ⟨%g6', F10, R6⟩
  by_cases hb : big L
  · have k21_h8 : k21_cond8 L = 1#1 := (cond8_iff L).mpr hb
    have hm15 : 2 ≤ 2 * 8 + 1 ∧ valid L (2 * 8 + 1 - 2) := ⟨by omega, Or.inr ⟨by omega, hb⟩⟩
    ihave S11 := (Entails.of_eq (outSlotV_pos d L fx hm15)) $$ S11
    icases S11 with ⟨%g7', F11, R7⟩
    sl_exec
    sl_step
    isplitl [HX]; · iapply (xRange_end d L fx); iexact HX
    isplitl [HOut F10_dst F11_dst]
    · iapply (Entails.of_eq (oRange_end (oQ d L fx)).symm)
      isplitl [F10_dst]; · iapply (Entails.of_eq (oQ_pos d L fx hm14.2).symm); iexact F10_dst
      isplitl [F11_dst]; · iapply (Entails.of_eq (oQ_pos d L fx hm15.2).symm); iexact F11_dst
      iapply (Entails.of_eq (oMix_end d L fx)); iexact HOut
    isplitl [H4]; · iexists _; iexact H4
    isplitl [H5]; · iexists _; iexact H5
    isplitl [R6]; · iexists _; iexact R6
    isplitl [R7]; · iexists _; iexact R7
    isplitl [Hs8]; · iexact Hs8
    isplitl [Hs9]; · iexact Hs9
    isplitl [F10]; · iexact F10
    isplitl [F11]; · iexact F11
    isplitl [HO]
    · iexists _; isplitr
      rotate_left
      · iexact HO
      ipureintro; intro p hp
      rcases Finset.mem_insert.mp hp with rfl | hp
      · exact .inr rfl
      rcases Finset.mem_insert.mp hp with rfl | hp
      · exact .inr rfl
      exact hW' p hp
    iexact HR
  · have k21_h8 : ¬ k21_cond8 L = 1#1 := fun h => hb ((cond8_iff L).mp h)
    have hm15 : ¬ (2 ≤ 2 * 8 + 1 ∧ valid L (2 * 8 + 1 - 2)) := by intro h; have := h.2; unfold valid at this; omega
    ihave S11 := (Entails.of_eq (outSlotV_neg d L fx hm15)) $$ S11
    icases S11 with ⟨⟨%g7', R7⟩, F11⟩
    sl_exec
    sl_step
    isplitl [HX]; · iapply (xRange_end d L fx); iexact HX
    isplitl [HOut F10_dst]
    · iapply (Entails.of_eq (oRange_end (oQ d L fx)).symm)
      isplitl [F10_dst]; · iapply (Entails.of_eq (oQ_pos d L fx hm14.2).symm); iexact F10_dst
      isplitr; · iapply (Entails.of_eq (oQ_neg d L fx (n := 15) (by unfold valid; omega)).symm); iempintro
      iapply (Entails.of_eq (oMix_end d L fx)); iexact HOut
    isplitl [H4]; · iexists _; iexact H4
    isplitl [H5]; · iexists _; iexact H5
    isplitl [R6]; · iexists _; iexact R6
    isplitl [R7]; · iexists _; iexact R7
    isplitl [Hs8]; · iexact Hs8
    isplitl [Hs9]; · iexact Hs9
    isplitl [F10]; · iexact F10
    isplitl [F11]; · iexact F11
    isplitl [HO]
    · iexists _; isplitr
      rotate_left
      · iexact HO
      ipureintro; intro p hp
      rcases Finset.mem_insert.mp hp with rfl | hp
      · exact .inr rfl
      exact hW' p hp
    iexact HR

/-! The subcore's scoped storage: the four staging buffers and the four semaphores of this call, and the rest. -/

abbrev c8 : GSem nD τ sig := (thr d L, SemLoc.dma cc21_scratch4.sem)
abbrev c9 : GSem nD τ sig := (thr d L, SemLoc.dma cc21_scratch5.sem)
abbrev c10 : GSem nD τ sig := (thr d L, SemLoc.dma cc21_scratch6.sem)
abbrev c11 : GSem nD τ sig := (thr d L, SemLoc.dma cc21_scratch7.sem)

omit [FloatOps F] in
theorem ownSems0_V :
    (ownSems0 (thr d L) : sProp 𝕄)
      = iprop(semVal (c8 d L) 0 ∗ semVal (c9 d L) 0 ∗ semVal (c10 d L) 0 ∗ semVal (c11 d L) 0
          ∗ bigSep (((((ownCells (thr d L)).erase (c8 d L)).erase (c9 d L)).erase (c10 d L)).erase (c11 d L)) fun g => semVal g 0) := by
  unfold SparseCore.Cfg.ownSems0
  rw [SparseCore.bigSep_erase' ((mem_ownCells (g := c8 d L)).mpr ⟨rfl, by
      show (SemLoc.dma cc21_scratch4.sem : SemLoc sig).isScoped .scVector = true; decide⟩),
    SparseCore.bigSep_erase' (Finset.mem_erase.mpr ⟨fun e => absurd (Prod.mk.inj e).2 (by decide), (mem_ownCells (g := c9 d L)).mpr ⟨rfl, by
      show (SemLoc.dma cc21_scratch5.sem : SemLoc sig).isScoped .scVector = true; decide⟩⟩),
    SparseCore.bigSep_erase' (Finset.mem_erase.mpr ⟨fun e => absurd (Prod.mk.inj e).2 (by decide), Finset.mem_erase.mpr ⟨fun e => absurd (Prod.mk.inj e).2 (by decide),
      (mem_ownCells (g := c10 d L)).mpr ⟨rfl, by show (SemLoc.dma cc21_scratch6.sem : SemLoc sig).isScoped .scVector = true; decide⟩⟩⟩),
    SparseCore.bigSep_erase' (Finset.mem_erase.mpr ⟨fun e => absurd (Prod.mk.inj e).2 (by decide), Finset.mem_erase.mpr ⟨fun e => absurd (Prod.mk.inj e).2 (by decide),
      Finset.mem_erase.mpr ⟨fun e => absurd (Prod.mk.inj e).2 (by decide),
      (mem_ownCells (g := c11 d L)).mpr ⟨rfl, by show (SemLoc.dma cc21_scratch7.sem : SemLoc sig).isScoped .scVector = true; decide⟩⟩⟩⟩)]

abbrev pV (L : grid21.Coords) : Proc τ := Proc.scVector (cV L) (jV L)

omit [FloatOps F] in
theorem ownBufs_V :
    (ownBufs (thr d L) : sProp 𝕄)
      = iprop((∃ f, (thr d L).loc cc21_scratch0 ↦{fullShare} f) ∗ (∃ f, (thr d L).loc cc21_scratch1 ↦{fullShare} f)
          ∗ (∃ f, (thr d L).loc cc21_scratch2 ↦{fullShare} f) ∗ (∃ f, (thr d L).loc cc21_scratch3 ↦{fullShare} f)
          ∗ bigSep (((((ownRefs (τ := τ) (pV L)).erase ((pV L).devRef cc21_scratch0)).erase ((pV L).devRef cc21_scratch1)).erase
              ((pV L).devRef cc21_scratch2)).erase ((pV L).devRef cc21_scratch3))
              fun b => iprop(∃ f, ((d, b) : Loc nD τ sig) ↦{fullShare} f)) := by
  unfold SparseCore.Cfg.ownBufs
  refine (SparseCore.bigSep_erase' (SparseCore.Cfg.mem_ownRefs_of_owner (p := pV L) (b := (pV L).devRef cc21_scratch0) rfl)).trans ?_
  rw [SparseCore.bigSep_erase' (Finset.mem_erase.mpr ⟨fun e => absurd (Proc.devRef_injective _ e) (show (cc21_scratch1 : Ref sig .scVector) ≠ cc21_scratch0 by decide),
      SparseCore.Cfg.mem_ownRefs_of_owner (p := pV L) (b := (pV L).devRef cc21_scratch1) rfl⟩),
    SparseCore.bigSep_erase' (Finset.mem_erase.mpr ⟨fun e => absurd (Proc.devRef_injective _ e) (show (cc21_scratch2 : Ref sig .scVector) ≠ cc21_scratch1 by decide),
      Finset.mem_erase.mpr ⟨fun e => absurd (Proc.devRef_injective _ e) (show (cc21_scratch2 : Ref sig .scVector) ≠ cc21_scratch0 by decide),
      SparseCore.Cfg.mem_ownRefs_of_owner (p := pV L) (b := (pV L).devRef cc21_scratch2) rfl⟩⟩),
    SparseCore.bigSep_erase' (Finset.mem_erase.mpr ⟨fun e => absurd (Proc.devRef_injective _ e) (show (cc21_scratch3 : Ref sig .scVector) ≠ cc21_scratch2 by decide),
      Finset.mem_erase.mpr ⟨fun e => absurd (Proc.devRef_injective _ e) (show (cc21_scratch3 : Ref sig .scVector) ≠ cc21_scratch1 by decide),
      Finset.mem_erase.mpr ⟨fun e => absurd (Proc.devRef_injective _ e) (show (cc21_scratch3 : Ref sig .scVector) ≠ cc21_scratch0 by decide),
      SparseCore.Cfg.mem_ownRefs_of_owner (p := pV L) (b := (pV L).devRef cc21_scratch3) rfl⟩⟩⟩)]

/-- The rest of the subcore's scoped storage, which the task does not touch. -/
def restR : sProp 𝕄 :=
  iprop((bigSep (((((ownRefs (τ := τ) (pV L)).erase ((pV L).devRef cc21_scratch0)).erase ((pV L).devRef cc21_scratch1)).erase
              ((pV L).devRef cc21_scratch2)).erase ((pV L).devRef cc21_scratch3))
              fun b => iprop(∃ f, ((d, b) : Loc nD τ sig) ↦{fullShare} f))
      ∗ bigSep (((((ownCells (thr d L)).erase (c8 d L)).erase (c9 d L)).erase (c10 d L)).erase (c11 d L)) fun g => semVal g 0)

theorem body_pre (hO : ∀ g, O g none = 0) :
    iprop(levAts (K (F := F)).L (K (F := F)).lev ∗ emp ∗ goRes d L fx ∗ ownBufs (thr d L) ∗ ownSems0 (thr d L) ∗ owes (thr d L) O W)
      ⊢ runPre d L O W fx (restR (F := F) d L) := by
  rw [ownSems0_V, ownBufs_V]
  unfold goRes runPre restR
  iintro ⟨#Hlv, -, ⟨HX, HOut⟩, ⟨H4, H5, H6, H7, Hbufs⟩, ⟨Hs8, Hs9, Hs10, Hs11, Hsems⟩, HO⟩
  ihave Hmw := ((K (F := F)).mayWaits_none (thr := thr d L) hO) $$ Hlv
  isplitr; · iexact Hmw
  isplitl [HO]; · iexact HO
  isplitl [HX]; · iexact HX
  isplitl [HOut]; · iexact HOut
  isplitl [H4]; · iexact H4
  isplitl [H5]; · iexact H5
  isplitl [H6]; · iexact H6
  isplitl [H7]; · iexact H7
  isplitl [Hs8]; · iexact Hs8
  isplitl [Hs9]; · iexact Hs9
  isplitl [Hs10]; · iexact Hs10
  isplitl [Hs11]; · iexact Hs11
  isplitl [Hbufs]; · iexact Hbufs
  iexact Hsems

theorem body_post :
    runPost d L O W fx (restR (F := F) d L)
      ⊢ iprop(tdRes d L fx ∗ ownBufs (thr d L) ∗ ownSems0 (thr d L) ∗ ∃ W', ⌜∀ p ∈ W', p ∈ W ∨ p.2 = none⌝ ∗ owes (thr d L) O W') := by
  rw [ownSems0_V, ownBufs_V]
  unfold tdRes runPost restR
  iintro ⟨HX, HOut, H4, H5, H6, H7, Hs8, Hs9, Hs10, Hs11, HW, Hbufs, Hsems⟩
  isplitl [HX HOut]
  · isplitl [HX]; · iexact HX
    iexact HOut
  isplitl [H4 H5 H6 H7 Hbufs]
  · isplitl [H4]; · iexact H4
    isplitl [H5]; · iexact H5
    isplitl [H6]; · iexact H6
    isplitl [H7]; · iexact H7
    iexact Hbufs
  isplitl [Hs8 Hs9 Hs10 Hs11 Hsems]
  · isplitl [Hs8]; · iexact Hs8
    isplitl [Hs9]; · iexact Hs9
    isplitl [Hs10]; · iexact Hs10
    isplitl [Hs11]; · iexact Hs11
    iexact Hsems
  iexact HW

/-- The task in the launch theorem's shape: from what the call hands the tile and the subcore's scoped storage to
    what the tile hands back and the storage again. -/
theorem tile_body (hF : (K (F := F)).Facts) (hO : ∀ g, O g none = 0) :
    iprop(levAts (K (F := F)).L (K (F := F)).lev ∗ emp ∗ goRes d L fx ∗ scopedBufs (thr d L) ∗ scopedSems0 (thr d L) ∗ owes (thr d L) O W)
      ⊢ wp frame (wpE (defs₀ (F := F)) 𝒱₀ (thr d L) none) Set.univ
          (cc21_sc_group L xtW (Memref.isWhole_whole _) oW (Memref.isWhole_whole _) a4 (Memref.isWhole_whole _) a5 (Memref.isWhole_whole _)
            a6 (Memref.isWhole_whole _) a7 (Memref.isWhole_whole _) cc21_scratch4 cc21_scratch5 cc21_scratch6 cc21_scratch7)
          fun _ => iprop(tdRes d L fx ∗ scopedBufs (thr d L) ∗ scopedSems0 (thr d L)
            ∗ ∃ W', ⌜∀ p ∈ W', p ∈ W ∨ p.2 = none⌝ ∗ owes (thr d L) O W') := by
  rw [(K (F := F)).scopedBufs_V hF d (cV L) (jV L), SparseCore.Cfg.scopedSems0_V (Val := Elt F) d (cV L) (jV L)]
  exact (body_pre d L O W fx hO).trans ((tile_run d L O W fx (restR (F := F) d L)).trans (wp_mono frame _ _ fun _ => body_post d L O W fx))

end Tile

end Cert.Proof.TileK21

end
-- ==== Proof.TileBVal21.lean ====
/-
  What the staging buffers of one vector subcore hold while it copies a piece of 3200 consecutive elements of row 21 of
  the transposed argument into the flat result, read index by index. No program and no ownership here: only the contents.

  A transfer lands the piece in row 0 of an 8 × 3200 staging array (`InRow`: position (0, t) of that row holds element
  (0, pos + t) of the transposed argument, `pos` the piece's first column). A loop of 200 trips copies that row, 16 lanes
  per trip, into the first 3200 elements of a flat staging array of 25600: trip `j` reads the 1 × 16 window at columns
  [16 j, 16 j + 16) of row 0 and writes it, flattened, at elements [16 j, 16 j + 16). After `j` trips the first 16 j
  elements of the flat array are the first 16 j elements of the row (`Lanes`); a trip extends the prefix by 16
  (`lanes_step`: an element below 16 j is outside the window written and keeps its value, an element of the window reads
  the lane written there, which is the row's element at the same column). A second transfer writes the first 3200
  elements of the flat array to the piece of the result at the same `pos`; so every element of that piece of the result
  holds the element of row 21 of the transposed argument at its own position (`out_written`): the composite of the three
  index maps t ↦ (0, pos + t) ↦ (0, t) ↦ t ↦ pos + t is the identity on positions of the row.
-/
import proofs.«206869_g37898791420194_cont_8to1_b_558_20_alg».proof.Proof.TileB21Defs
import proofs.«206869_g37898791420194_cont_8to1_b_558_20_alg».proof.Proof.Spec
import Idealize.ShloMosaic.Lib.WritesUnit
import Idealize.ShloMosaic.Lib.ValueLayout

noncomputable section

namespace Cert.Proof.TileBVal21

open Cert.Proof.TileB21 Cert.Kernel Cert.Kernel.Gen
open Idealize.ShloMosaic Idealize.ShloMosaic.ValueIdx

variable {F : FTy → Type} [FloatOps F]
variable (d : Dev nD) (L : grid21.Coords)
variable (fx : Buf (Elt F) ((Memref.whole main_v0_scv : Memref sig .scVector .hbm S22x1600000 .f32).view.loc (thr d L)))

abbrev rowRect : Rect S8x3200 := Rect.unit (s := S8x3200) ![0, 0] S1x3200.size inb_S8x3200_S1x3200_0_0

/-- row 0 of the staging array is piece n of the argument row -/
def InRow (a : Memref sig .scVector .vmem S8x3200 .f32) (ga : Buf (Elt F) (a.view.loc (thr d L))) (n : ℕ) : Prop :=
  ∀ y : S1x3200.Idx, a.view.read (Elt F) ga (rowRect.emb y) = (inM L n).view.read (Elt F) fx y

theorem inRow_fetch (a : Memref sig .scVector .vmem S8x3200 .f32) (gold : Buf (Elt F) (a.view.loc (thr d L)))
    (w : S1x3200.Idx → Elt F .f32) (n : ℕ) (hw : ∀ y, w y = (inM L n).view.read (Elt F) fx y) :
    InRow d L fx a (a.view.writes (Elt F) gold [⟨rowRect, w⟩]) n :=
  fun y => (View.read_writes_cons_emb a.view gold rowRect w [] y).trans (hw y)

def Lanes (a : Memref sig .scVector .vmem S8x3200 .f32) (b : Memref sig .scVector .vmem S25600 .f32)
    (ga : Buf (Elt F) (a.view.loc (thr d L))) (gb : Buf (Elt F) (b.view.loc (thr d L))) (j : ℕ) : Prop :=
  ∀ (r : ℕ) (hr : r < 3200), r < 16 * j →
    b.view.read (Elt F) gb (ix1 (⟨r, by omega⟩ : Fin 25600)) = a.view.read (Elt F) ga (ix2 (0 : Fin 8) (⟨r, hr⟩ : Fin 3200))

theorem lanes_zero (a : Memref sig .scVector .vmem S8x3200 .f32) (b : Memref sig .scVector .vmem S25600 .f32)
    (ga : Buf (Elt F) (a.view.loc (thr d L))) (gb : Buf (Elt F) (b.view.loc (thr d L))) : Lanes d L a b ga gb 0 := by
  intro r hr h; omega

/-- The 1 × 16 window at column `c` of the staging array, read at lane `t`, is element `(0, c + t)`. -/
theorem idx_window {off : Fin 2 → ℕ} {c : ℕ} (h : off = ![0, c]) (p : ∀ a', off a' + S1x16.size a' ≤ S8x3200.size a')
    (t : Fin 16) (hr : c + t.val < 3200) :
    (Rect.unit (s := S8x3200) off S1x16.size p).toLoadRect.idx (ix2 (0 : Fin 1) t) = ix2 (0 : Fin 8) (⟨c + t.val, hr⟩ : Fin 3200) := by
  subst h
  funext a'; apply Fin.ext
  rw [LoadRect.idx_apply]
  match a' with
  | ⟨0, _⟩ => show 0 + 1 * 0 = 0; omega
  | ⟨1, _⟩ => show c + 1 * t.val = c + t.val; omega

/-- One trip of a lane-copy loop, the offsets given by their closed forms. -/
theorem lanes_step_core (a : Memref sig .scVector .vmem S8x3200 .f32) (b : Memref sig .scVector .vmem S25600 .f32)
    (ga : Buf (Elt F) (a.view.loc (thr d L))) (gb : Buf (Elt F) (b.view.loc (thr d L)))
    (t : ℕ) {off3 : Fin 2 → ℕ} {off4 : Fin 1 → ℕ} (h3 : off3 = ![0, 16 * t]) (h4 : off4 = ![16 * t])
    (p3 : ∀ a', off3 a' + S1x16.size a' ≤ S8x3200.size a') (p4 : ∀ a', off4 a' + S16.size a' ≤ S25600.size a')
    (h : Lanes d L a b ga gb t) :
    Lanes d L a b ga (b.view.writes (Elt F) gb [⟨Rect.unit (s := S25600) off4 S16.size p4,
      shapeCast S16 (a.view.readAt (Elt F) (Rect.unit (s := S8x3200) off3 S1x16.size p3).toLoadRect ga) shapeCasts_S1x16_S16⟩]) (t + 1) := by
  intro r hr hlt
  by_cases hlo : r < 16 * t
  · refine (View.read_writes_cons_unit_of_not_mem b.view gb p4 _ [] _ h4 (0 : Fin 1) (Or.inl ?_)).trans (h r hr hlo)
    show r < 16 * t
    exact hlo
  · have hx : r - 16 * t < 16 := by omega
    refine (View.read_writes_cons_unit_of_mem b.view gb p4 _ [] _ (ix1 (⟨r - 16 * t, hx⟩ : Fin 16)) h4 ?_).trans ?_
    · intro a'
      match a' with
      | ⟨0, _⟩ => show r = 16 * t + (r - 16 * t); omega
    · rw [shapeCast_1a_a_apply, View.readAt_apply, idx_window h3 p3 ⟨r - 16 * t, hx⟩ (by show 16 * t + (r - 16 * t) < 3200; omega)]
      congr 2
      apply Fin.ext
      show 16 * t + (r - 16 * t) = r
      omega

theorem lanes_step (a : Memref sig .scVector .vmem S8x3200 .f32) (b : Memref sig .scVector .vmem S25600 .f32)
    (ga : Buf (Elt F) (a.view.loc (thr d L))) (gb : Buf (Elt F) (b.view.loc (thr d L)))
    (j : Fin k21_t2_loop.trips) (p3 : ∀ a', (k21_off3 j) a' + S1x16.size a' ≤ S8x3200.size a')
    (p4 : ∀ a', (k21_off4 j) a' + S16.size a' ≤ S25600.size a') (h : Lanes d L a b ga gb j.val) :
    Lanes d L a b ga (b.view.writes (Elt F) gb [⟨Rect.unit (s := S25600) (k21_off4 j) S16.size p4,
      k21_pay1 (a.view.readAt (Elt F) (Rect.unit (s := S8x3200) (k21_off3 j) S1x16.size p3).toLoadRect ga)⟩]) (j.val + 1) :=
  lanes_step_core d L a b ga gb j.val (k21_off3_eq j) (k21_off4_eq j) p3 p4 h

theorem lanes_step' (a : Memref sig .scVector .vmem S8x3200 .f32) (b : Memref sig .scVector .vmem S25600 .f32)
    (ga : Buf (Elt F) (a.view.loc (thr d L))) (gb : Buf (Elt F) (b.view.loc (thr d L)))
    (j : Fin k21_t3_loop.trips) (p3 : ∀ a', (k21_off8 j) a' + S1x16.size a' ≤ S8x3200.size a')
    (p4 : ∀ a', (k21_off9 j) a' + S16.size a' ≤ S25600.size a') (h : Lanes d L a b ga gb j.val) :
    Lanes d L a b ga (b.view.writes (Elt F) gb [⟨Rect.unit (s := S25600) (k21_off9 j) S16.size p4,
      k21_pay2 (a.view.readAt (Elt F) (Rect.unit (s := S8x3200) (k21_off8 j) S1x16.size p3).toLoadRect ga)⟩]) (j.val + 1) :=
  lanes_step_core d L a b ga gb j.val (k21_off8_eq j) (k21_off9_eq j) p3 p4 h

/-- Position `y` of the write-out window of the flat staging array is its element `y 0`. -/
theorem stg_emb (y : S3200.Idx) (hy : (y 0).val < 25600) :
    (Rect.unit (s := S25600) ![0] S3200.size inb_S25600_S3200_0).emb y = ix1 (⟨(y 0).val, hy⟩ : Fin 25600) := by
  funext a'; apply Fin.ext
  match a' with
  | ⟨0, _⟩ => show 0 + 1 * (y 0).val = (y 0).val; omega

/-- Position `(0, t)` of row 0 of the staging array is its element `(0, t)`. -/
theorem row_emb (t : Fin 3200) : rowRect.emb (ix2 (0 : Fin 1) t) = ix2 (0 : Fin 8) t := by
  funext a'; apply Fin.ext
  match a' with
  | ⟨0, _⟩ => show 0 + 1 * 0 = 0; omega
  | ⟨1, _⟩ => show 0 + 1 * t.val = t.val; omega

/-- Position `(0, t)` of piece `n` of the argument row is element `(0, pos + t)` of the transposed argument;
    position `y` of piece `n` of the result is element `pos + y 0` of the result. -/
theorem in_emb (n : ℕ) (t : Fin 3200) (h : pos L n + t.val < 1600000) :
    (inM L n).view.emb (ix2 (0 : Fin 1) t) = ix2 (21 : Fin 22) (⟨pos L n + t.val, h⟩ : Fin 1600000) := by
  funext a'; apply Fin.ext
  match a' with
  | ⟨0, _⟩ => show 21 + 1 * 0 = 21; omega
  | ⟨1, _⟩ => show pos L n + 1 * t.val = pos L n + t.val; omega

theorem out_emb (n : ℕ) (y : S3200.Idx) (h : pos L n + (y 0).val < 1600000) :
    (outM L n).view.emb y = ix1 (⟨pos L n + (y 0).val, h⟩ : Fin 1600000) := by
  funext a'; apply Fin.ext
  match a' with
  | ⟨0, _⟩ => show pos L n + 1 * (y 0).val = pos L n + (y 0).val; omega

/-- Both lane-copy loops run 200 trips: 200 · 16 = 3200, the whole row. -/
theorem trips2 : k21_t2_loop.trips = 200 := by decide
theorem trips3 : k21_t3_loop.trips = 200 := by decide

/-- After all its trips a lane-copy loop has copied the whole row. -/
theorem lanes_all (a : Memref sig .scVector .vmem S8x3200 .f32) (b : Memref sig .scVector .vmem S25600 .f32)
    (ga : Buf (Elt F) (a.view.loc (thr d L))) (gb : Buf (Elt F) (b.view.loc (thr d L)))
    (h : Lanes d L a b ga gb k21_t2_loop.trips) : Lanes d L a b ga gb 200 := trips2 ▸ h
theorem lanes_all' (a : Memref sig .scVector .vmem S8x3200 .f32) (b : Memref sig .scVector .vmem S25600 .f32)
    (ga : Buf (Elt F) (a.view.loc (thr d L))) (gb : Buf (Elt F) (b.view.loc (thr d L)))
    (h : Lanes d L a b ga gb k21_t3_loop.trips) : Lanes d L a b ga gb 200 := trips3 ▸ h

/-- The write-out of a piece: the first 3200 elements of the flat staging array, which the 200 lane copies filled from
    row 0 of the staging array, which the fetch filled from piece `n` of row 21 of the transposed argument, land at
    piece `n` of the result, at the same positions of the row. -/
theorem out_written (a : Memref sig .scVector .vmem S8x3200 .f32) (b : Memref sig .scVector .vmem S25600 .f32) (n : ℕ)
    (ga : Buf (Elt F) (a.view.loc (thr d L))) (gb : Buf (Elt F) (b.view.loc (thr d L)))
    (f0 : Buf (Elt F) ((outM L n).view.loc (thr d L))) (w : S3200.Idx → Elt F .f32)
    (hw : ∀ y, w y = (stg b).view.read (Elt F) gb y) (hl : Lanes d L a b ga gb 200) (hr : InRow d L fx a ga n) (hv : valid L n) :
    ∀ i ∈ (outM L n).view.set, ((outM L n).view.writes (Elt F) f0 [⟨Rect.whole _, w⟩]) i = Cert.Spec.row 21 fx i := by
  intro i hi
  obtain ⟨y, -, rfl⟩ := Finset.mem_map.mp hi
  have hy : (y 0).val < 3200 := (y 0).isLt
  have hp : pos L n + (y 0).val < 1600000 := by unfold pos; omega
  have e1 : (outM L n).view.writes (Elt F) f0 [⟨Rect.whole _, w⟩] ((outM L n).view.emb y) = w y := by
    have h := View.read_writes_cons_emb (outM L n).view f0 (Rect.whole _) w [] y
    rw [Rect.emb_whole_apply] at h
    exact (cast_eq _ _).symm.trans ((View.read_apply _ _).symm.trans h)
  have e2 : (stg b).view.read (Elt F) gb y = b.view.read (Elt F) gb (ix1 (⟨(y 0).val, by omega⟩ : Fin 25600)) :=
    congrArg (b.view.read (Elt F) gb) (stg_emb y (by omega))
  have e3 : a.view.read (Elt F) ga (ix2 (0 : Fin 8) (⟨(y 0).val, hy⟩ : Fin 3200))
      = (inM L n).view.read (Elt F) fx (ix2 (0 : Fin 1) (⟨(y 0).val, hy⟩ : Fin 3200)) :=
    (congrArg (a.view.read (Elt F) ga) (row_emb ⟨(y 0).val, hy⟩).symm).trans (hr _)
  have e4 : (inM L n).view.read (Elt F) fx (ix2 (0 : Fin 1) (⟨(y 0).val, hy⟩ : Fin 3200))
      = fx (ix2 (21 : Fin 22) (⟨pos L n + (y 0).val, hp⟩ : Fin 1600000)) :=
    ((View.read_apply _ _).trans (cast_eq _ _)).trans (congrArg fx (in_emb L n ⟨(y 0).val, hy⟩ hp))
  have e5 : Cert.Spec.row 21 fx ((outM L n).view.emb y) = fx (ix2 (21 : Fin 22) (⟨pos L n + (y 0).val, hp⟩ : Fin 1600000)) :=
    (congrArg (Cert.Spec.row 21 fx) (out_emb L n y hp)).trans (Cert.Spec.row_apply 21 fx _)
  exact e1.trans ((hw y).trans (e2.trans ((hl _ hy (by omega)).trans (e3.trans (e4.trans e5.symm)))))

end Cert.Proof.TileBVal21

end
-- ==== Proof.TileB21.lean ====
/-
  One vector subcore's task of copy kernel 21 (counting from 0), run symbolically: the two fetch slots and two write-out slots
  between trips of the main loop (what each transfer in flight will hand back, and what the staging buffers hold), the
  invariant of the main loop and of the two lane-copy loops, and the task's run — from the tile's pieces of row 21 of
  the transposed argument and of the result to the same pieces with the result holding the row's elements.
-/
import proofs.«206869_g37898791420194_cont_8to1_b_558_20_alg».proof.Proof.TileB21Defs
import proofs.«206869_g37898791420194_cont_8to1_b_558_20_alg».proof.Proof.TileBVal21
noncomputable section

namespace Cert.Proof.TileB21

open Cert.Kernel Cert.Kernel.Gen Cert.Proof.TileBVal21
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 22) (Elt F) ℕ UU ℕ
local notation "xtW" => (Memref.whole Cert.Kernel.main_v0_scv : Memref Cert.Kernel.sig Kind.scVector Space.hbm Cert.Kernel.S22x1600000 EltTy.f32)
local notation "oW" => (Memref.whole Cert.Kernel.main_v22_scv : Memref Cert.Kernel.sig Kind.scVector Space.hbm Cert.Kernel.S1600000 EltTy.f32)
local notation "a4" => (Memref.whole Cert.Kernel.cc21_scratch0 : Memref Cert.Kernel.sig Kind.scVector Space.vmem Cert.Kernel.S8x3200 EltTy.f32)
local notation "a5" => (Memref.whole Cert.Kernel.cc21_scratch1 : Memref Cert.Kernel.sig Kind.scVector Space.vmem Cert.Kernel.S8x3200 EltTy.f32)
local notation "a6" => (Memref.whole Cert.Kernel.cc21_scratch2 : Memref Cert.Kernel.sig Kind.scVector Space.vmem Cert.Kernel.S25600 EltTy.f32)
local notation "a7" => (Memref.whole Cert.Kernel.cc21_scratch3 : Memref Cert.Kernel.sig Kind.scVector Space.vmem Cert.Kernel.S25600 EltTy.f32)

variable [FloatOps F]

section Tile

variable (d : Dev nD) (L : grid21.Coords)
variable (O : CellTallies nD τ sig (HIx 22)) (W : Waits sig (HIx 22))
variable (fx : Buf (Elt F) ((xtW).view.loc (thr d L)))

/-- Piece `n` of the result at its final contents. -/
abbrev oqPiece (n : ℕ) : sProp 𝕄 := (outM L n).view.loc (thr d L) ↦[(outM L n).view.set]{fullShare} (Cert.Spec.row 21 fx)
theorem oQ_pos {n : ℕ} (v : valid L n) : oQ d L fx n = oqPiece d L fx n := if_pos v
theorem oQ_neg {n : ℕ} (v : ¬ valid L n) : oQ d L fx n = iprop(emp) := if_neg v

/-- A fetch slot, remembering that the staging row it will hand back holds the piece. -/
def inSlotV (a : Memref sig .scVector .vmem S8x3200 .f32) (sm : DmaSem sig) (n : ℕ) : sProp 𝕄 :=
  if valid L n then
    iprop(∃ g, ⌜InRow d L fx a g n⌝ ∗ Transfers.Flight countersEmb (thr d L) (SemLoc.dma sm) (default : HIx 22) NN
      iprop((a.view.loc (thr d L) ↦{fullShare} g) ∗ xtPiece d L fx n))
  else iprop((∃ g, a.view.loc (thr d L) ↦{fullShare} g) ∗ semVal (thr d L, SemLoc.dma sm) 0)

/-- A write-out slot: the piece in flight will come back holding the row's elements. -/
def outSlotV (a : Memref sig .scVector .vmem S25600 .f32) (sm : DmaSem sig) (m : ℕ) : sProp 𝕄 :=
  if 2 ≤ m ∧ valid L (m - 2) then
    iprop(∃ g, Transfers.Flight countersEmb (thr d L) (SemLoc.dma sm) (default : HIx 22) NN
        iprop(oqPiece d L fx (m - 2) ∗ ((stg a).view.loc (thr d L) ↦[(stg a).view.set]{fullShare} g))
      ∗ (a.view.loc (thr d L) ↦[Finset.univ \ (stg a).view.set]{fullShare} g))
  else iprop((∃ g, a.view.loc (thr d L) ↦{fullShare} g) ∗ semVal (thr d L, SemLoc.dma sm) 0)

theorem inSlotV_pos {a : Memref sig .scVector .vmem S8x3200 .f32} {sm : DmaSem sig} {n : ℕ} (v : valid L n) :
    inSlotV d L fx a sm n = iprop(∃ g, ⌜InRow d L fx a g n⌝ ∗ Transfers.Flight countersEmb (thr d L) (SemLoc.dma sm) (default : HIx 22) NN
      iprop((a.view.loc (thr d L) ↦{fullShare} g) ∗ xtPiece d L fx n)) := by unfold inSlotV; rw [if_pos v]
theorem inSlotV_neg {a : Memref sig .scVector .vmem S8x3200 .f32} {sm : DmaSem sig} {n : ℕ} (v : ¬ valid L n) :
    inSlotV d L fx a sm n = iprop((∃ g, a.view.loc (thr d L) ↦{fullShare} g) ∗ semVal (thr d L, SemLoc.dma sm) 0) := by
  unfold inSlotV; rw [if_neg v]
theorem outSlotV_pos {a : Memref sig .scVector .vmem S25600 .f32} {sm : DmaSem sig} {m : ℕ} (h : 2 ≤ m ∧ valid L (m - 2)) :
    outSlotV d L fx a sm m = iprop(∃ g, Transfers.Flight countersEmb (thr d L) (SemLoc.dma sm) (default : HIx 22) NN
        iprop(oqPiece d L fx (m - 2) ∗ ((stg a).view.loc (thr d L) ↦[(stg a).view.set]{fullShare} g))
      ∗ (a.view.loc (thr d L) ↦[Finset.univ \ (stg a).view.set]{fullShare} g)) := by unfold outSlotV; rw [if_pos h]
theorem outSlotV_neg {a : Memref sig .scVector .vmem S25600 .f32} {sm : DmaSem sig} {m : ℕ} (h : ¬ (2 ≤ m ∧ valid L (m - 2))) :
    outSlotV d L fx a sm m = iprop((∃ g, a.view.loc (thr d L) ↦{fullShare} g) ∗ semVal (thr d L, SemLoc.dma sm) 0) := by
  unfold outSlotV; rw [if_neg h]

/-- A fetch just issued: the staging row will hold what the transfer reads, which is the piece. -/
theorem fl_inV {off : Fin 2 → ℕ} {n : ℕ} (h : off = ![21, pos L n]) (p : ∀ a, off a + S1x3200.size a ≤ S22x1600000.size a) (v : valid L n)
    (a : Memref sig .scVector .vmem S8x3200 .f32) (sm : DmaSem sig) :
    (iprop(∃ (gold : Buf (Elt F) (a.view.loc (thr d L))) (w : S1x3200.Idx → Elt F .f32),
        ⌜∀ y, w y = ((xtW).slice (Rect.unit (s := S22x1600000) off S1x3200.size p) (fun _ => rfl)).view.read (Elt F) fx y⌝
        ∗ Transfers.Flight countersEmb (thr d L) (SemLoc.dma sm) (default : HIx 22) NN
          iprop((a.view.loc (thr d L) ↦{fullShare} a.view.writes (Elt F) gold [⟨rowRect, w⟩])
            ∗ (((xtW).slice (Rect.unit (s := S22x1600000) off S1x3200.size p) (fun _ => rfl)).view.loc (thr d L)
                ↦[((xtW).slice (Rect.unit (s := S22x1600000) off S1x3200.size p) (fun _ => rfl)).view.set]{fullShare} fx))) : sProp 𝕄)
      ⊢ inSlotV d L fx a sm n := by
  subst h
  rw [inSlotV_pos d L fx v]
  iintro ⟨%gold, %w, %hw, H⟩
  iexists _
  isplitr
  · ipureintro; exact inRow_fetch d L fx a gold w n hw
  · iexact H

set_option maxHeartbeats 4000000 in
/-- A write-out just issued from a flat staging buffer whose first 3200 elements are the staging row, itself piece
    `n` of the argument row: the piece of the result will hold the row's elements. -/
theorem fl_outV {off : Fin 1 → ℕ} {n : ℕ} (h : off = ![pos L n]) (p : ∀ a, off a + S3200.size a ≤ S1600000.size a) (v : valid L n)
    (ar : Memref sig .scVector .vmem S8x3200 .f32) (a : Memref sig .scVector .vmem S25600 .f32) (sm : DmaSem sig)
    (f0 : Buf (Elt F) ((oW).view.loc (thr d L))) (ga : Buf (Elt F) (ar.view.loc (thr d L))) (gb : Buf (Elt F) (a.view.loc (thr d L)))
    (hl : Lanes d L ar a ga gb 200) (hr : InRow d L fx ar ga n) :
    (iprop(∃ (w : S3200.Idx → Elt F .f32),
        ⌜∀ y, w y = (stg a).view.read (Elt F) gb y⌝
        ∗ Transfers.Flight countersEmb (thr d L) (SemLoc.dma sm) (default : HIx 22) NN
          iprop((((oW).slice (Rect.unit (s := S1600000) off S3200.size p) (fun _ => rfl)).view.loc (thr d L)
                ↦[((oW).slice (Rect.unit (s := S1600000) off S3200.size p) (fun _ => rfl)).view.set]{fullShare}
                  (((oW).slice (Rect.unit (s := S1600000) off S3200.size p) (fun _ => rfl)).view.writes (Elt F) f0 [⟨Rect.whole _, w⟩]))
            ∗ ((stg a).view.loc (thr d L) ↦[(stg a).view.set]{fullShare} gb))
        ∗ (a.view.loc (thr d L) ↦[Finset.univ \ (stg a).view.set]{fullShare} gb)) : sProp 𝕄)
      ⊢ outSlotV d L fx a sm (n + 2) := by
  subst h
  rw [outSlotV_pos d L fx (m := n + 2) ⟨by omega, by simpa using v⟩]
  iintro ⟨%w, %hw, H, R⟩
  have hD : (iprop(((outM L n).view.loc (thr d L) ↦[(outM L n).view.set]{fullShare} ((outM L n).view.writes (Elt F) f0 [⟨Rect.whole _, w⟩]))
          ∗ ((stg a).view.loc (thr d L) ↦[(stg a).view.set]{fullShare} gb)) : sProp 𝕄)
      ⊢ iprop(oqPiece d L fx (n + 2 - 2) ∗ ((stg a).view.loc (thr d L) ↦[(stg a).view.set]{fullShare} gb)) := by
    rw [Nat.add_sub_cancel]
    have e : (((outM L n).view.loc (thr d L) ↦[(outM L n).view.set]{fullShare} ((outM L n).view.writes (Elt F) f0 [⟨Rect.whole _, w⟩])) : sProp 𝕄)
        = oqPiece d L fx n := pointsTo_congr (out_written d L fx ar a n ga gb f0 w hw hl hr v)
    iintro ⟨H1, H2⟩
    isplitl [H1]
    · iapply (Entails.of_eq e); iexact H1
    · iexact H2
  iexists gb
  isplitl [H]
  · iapply (Transfers.Flight_mono countersEmb (thr d L) hD); iexact H
  · iexact R

/-- The result pieces outside the slots before trip `t`: those already written hold the row, the others some contents. -/
def oMix (t n : ℕ) : sProp 𝕄 := if n + 2 < 2 * t then oQ d L fx n else oP (F := F) d L n
theorem oMix_lt {t n : ℕ} (h : n + 2 < 2 * t) : oMix d L fx t n = oQ d L fx n := if_pos h
theorem oMix_ge {t n : ℕ} (h : ¬ n + 2 < 2 * t) : oMix d L fx t n = oP (F := F) d L n := if_neg h
theorem oMix_core (k : ℕ) : bigSep (oCore k) (oMix d L fx k) = bigSep (oCore k) (oMix d L fx (k + 1)) :=
  bigSep_congr fun n hn => by
    have hn' : n + 2 ≠ 2 * k ∧ n + 2 ≠ 2 * k + 1 ∧ n ≠ 2 * k ∧ n ≠ 2 * k + 1 := by
      simp only [oCore, Finset.mem_filter, Finset.mem_range] at hn; exact hn.2
    by_cases h : n + 2 < 2 * k
    · rw [oMix_lt d L fx h, oMix_lt d L fx (by omega)]
    · rw [oMix_ge d L fx h, oMix_ge d L fx (by omega)]
theorem oMix_zero : bigSep (oSet 0) (oMix d L fx 0) = bigSep (Finset.range 18) (oP (F := F) d L) := by
  rw [oSet_zero]; exact bigSep_congr fun n _ => oMix_ge d L fx (by omega)
theorem oMix_end : bigSep (oSet 8) (oMix d L fx 8) = bigSep (oSet 8) (oQ d L fx) :=
  bigSep_congr fun n hn => by
    have hn' : n < 18 ∧ n + 2 ≠ 16 ∧ n + 2 ≠ 17 := by simpa only [oSet, Finset.mem_filter, Finset.mem_range] using hn
    by_cases h : n + 2 < 2 * 8
    · exact oMix_lt d L fx h
    · rw [oMix_ge d L fx h, oP_neg (F := F) d L (by unfold valid; omega), oQ_neg d L fx (by unfold valid; omega)]

/-- The lane-copy loops: before trip `j` the first 16·j elements of the flat staging buffer are the staging row's. -/
def laneV0 (g4 : Buf (Elt F) ((a4).view.loc (thr d L))) (j : ℕ) (_ : PUnit) : sProp 𝕄 :=
  iprop(((a4).view.loc (thr d L) ↦{fullShare} g4) ∗ (∃ g, ((a6).view.loc (thr d L) ↦{fullShare} g) ∗ ⌜Lanes d L a4 a6 g4 g j⌝))
def laneV1 (g5 : Buf (Elt F) ((a5).view.loc (thr d L))) (j : ℕ) (_ : PUnit) : sProp 𝕄 :=
  iprop(((a5).view.loc (thr d L) ↦{fullShare} g5) ∗ (∃ g, ((a7).view.loc (thr d L) ↦{fullShare} g) ∗ ⌜Lanes d L a5 a7 g5 g j⌝))

def invV (t : ℕ) (_ : PUnit) : sProp 𝕄 :=
  iprop(Transfers.MayWaits (thr d L) (none : HIx 22) O
    ∗ (∃ W', ⌜∀ p ∈ W', p ∈ W ∨ p.2 = none⌝ ∗ owes (thr d L) O W')
    ∗ bigSep (xSet t) (xP d L fx) ∗ bigSep (oSet t) (oMix d L fx t)
    ∗ inSlotV d L fx a4 cc21_scratch4.sem (2 * t) ∗ outSlotV d L fx a6 cc21_scratch6.sem (2 * t)
    ∗ inSlotV d L fx a5 cc21_scratch5.sem (2 * t + 1) ∗ outSlotV d L fx a7 cc21_scratch7.sem (2 * t + 1))

/-- After the last trip nothing of the argument row is in a slot: the tile holds all its pieces. -/
theorem xRange_end : bigSep (xSet 8) (xP d L fx) ⊢ bigSep (Finset.range 18) (xP d L fx) := by
  rw [two_out (s := Finset.range 18) (a := 16) (b := 17) (by decide) (by decide) (by decide),
    show ((Finset.range 18).erase 16).erase 17 = xSet 8 by decide]
  iintro H
  isplitr; · iapply (Entails.of_eq (xP_neg d L fx (n := 16) (by unfold valid; omega)).symm); iempintro
  isplitr; · iapply (Entails.of_eq (xP_neg d L fx (n := 17) (by unfold valid; omega)).symm); iempintro
  iexact H
omit [FloatOps F] in
theorem oRange_end (Φ : ℕ → sProp 𝕄) : bigSep (Finset.range 18) Φ = iprop(Φ 14 ∗ Φ 15 ∗ bigSep (oSet 8) Φ) := by
  rw [two_out (s := Finset.range 18) (a := 14) (b := 15) (by decide) (by decide) (by decide),
    show ((Finset.range 18).erase 14).erase 15 = oSet 8 by decide]

/-- What the run starts from and ends with, beside an untouched rest `R`. -/
def runPre (R : sProp 𝕄) : sProp 𝕄 :=
    iprop(Transfers.MayWaits (thr d L) (none : HIx 22) O ∗ owes (thr d L) O W
        ∗ bigSep (Finset.range 18) (xP d L fx) ∗ bigSep (Finset.range 18) (oP (F := F) d L)
        ∗ (∃ g, (a4).view.loc (thr d L) ↦{fullShare} g) ∗ (∃ g, (a5).view.loc (thr d L) ↦{fullShare} g)
        ∗ (∃ g, (a6).view.loc (thr d L) ↦{fullShare} g) ∗ (∃ g, (a7).view.loc (thr d L) ↦{fullShare} g)
        ∗ semVal (thr d L, SemLoc.dma cc21_scratch4.sem) 0 ∗ semVal (thr d L, SemLoc.dma cc21_scratch5.sem) 0
        ∗ semVal (thr d L, SemLoc.dma cc21_scratch6.sem) 0 ∗ semVal (thr d L, SemLoc.dma cc21_scratch7.sem) 0 ∗ R)
def runPost (R : sProp 𝕄) : sProp 𝕄 :=
    iprop(bigSep (Finset.range 18) (xP d L fx) ∗ bigSep (Finset.range 18) (oQ d L fx)
            ∗ (∃ g, (a4).view.loc (thr d L) ↦{fullShare} g) ∗ (∃ g, (a5).view.loc (thr d L) ↦{fullShare} g)
            ∗ (∃ g, (a6).view.loc (thr d L) ↦{fullShare} g) ∗ (∃ g, (a7).view.loc (thr d L) ↦{fullShare} g)
            ∗ semVal (thr d L, SemLoc.dma cc21_scratch4.sem) 0 ∗ semVal (thr d L, SemLoc.dma cc21_scratch5.sem) 0
            ∗ semVal (thr d L, SemLoc.dma cc21_scratch6.sem) 0 ∗ semVal (thr d L, SemLoc.dma cc21_scratch7.sem) 0
            ∗ (∃ W', ⌜∀ p ∈ W', p ∈ W ∨ p.2 = none⌝ ∗ owes (thr d L) O W') ∗ R)

set_option maxHeartbeats 16000000 in
/-- The task's run: from its pieces of the argument row and of the result, the four staging buffers and the four
    semaphores at zero, to the same with every piece of the result holding the row's elements. -/
theorem tile_run (R : sProp 𝕄) :
    runPre d L O W fx R
      ⊢ wp frame (wpE (defs₀ (F := F)) 𝒱₀ (thr d L) none) Set.univ
          (cc21_sc_group L xtW (Memref.isWhole_whole _) oW (Memref.isWhole_whole _) a4 (Memref.isWhole_whole _) a5 (Memref.isWhole_whole _)
            a6 (Memref.isWhole_whole _) a7 (Memref.isWhole_whole _) cc21_scratch4 cc21_scratch5 cc21_scratch6 cc21_scratch7)
          fun _ => runPost d L O W fx R := by
  unfold runPre runPost
  have v0 : valid L 0 := Or.inl (by omega)
  have v1 : valid L 1 := Or.inl (by omega)
  have k21_h7 : k21_cond7 L = 1#1 := cond7_iff L
  iintro ⟨#Hmw, HO, HX, HOut, ⟨%g4, H4⟩, ⟨%g5, H5⟩, ⟨%g6, H6⟩, ⟨%g7, H7⟩, Hs8, Hs9, Hs10, Hs11, HR⟩
  ihave HX := (Entails.of_eq (xRange_split d L fx v0 v1)) $$ HX
  icases HX with ⟨X0, X1, HX⟩
  ihave X0 := (Entails.of_eq (in_congr d L (off_in0 L v0).symm (in_inb L _) (k21_off1_inb L 0) fx)) $$ X0
  ihave X1 := (Entails.of_eq (in_congr d L (off_in1 L v1).symm (in_inb L _) (k21_off1_inb L 1) fx)) $$ X1
  sl_unfold [cc21_sc_group]
  sl_exec
  ihave S8 := (fl_inV d L fx (off_in0 L v0) (k21_off1_inb L 0) v0 a4 cc21_scratch4.sem) $$ [Hs8]
  · iexists _, _
    isplitr
    rotate_left
    · iexact Hs8
    ipureintro; intro y; rfl
  ihave S9 := (fl_inV d L fx (off_in1 L v1) (k21_off1_inb L 1) v1 a5 cc21_scratch5.sem) $$ [Hs9]
  · iexists _, _
    isplitr
    rotate_left
    · iexact Hs9
    ipureintro; intro y; rfl
  sl_for (invV d L O W fx) $$ [HO HX HOut S8 S9 H6 H7 Hs10 Hs11]
  case region =>
    intro (k : Fin k21_t1_loop.trips) acc
    have hk : k.val < 8 := Nat.lt_of_lt_of_eq k.isLt trips1
    unfold invV
    iintro ⟨#Hmw, ⟨%W', %hW', HO⟩, HX, HOut, S8, S10, S9, S11⟩
    by_cases hk1 : 1 ≤ k.val
    · by_cases v3 : valid L (2 * k.val + 3)
      · -- the generic trip: both drains, both pieces worked, both next fetches issued
        have hk6 : k.val ≤ 6 := by unfold valid at v3; omega
        have k21_h1 : k21_cond1 k = 1#1 := (cond1_iff k).mpr (by omega)
        have k21_h2 : k21_cond2 L k = 1#1 := cond2_iff L k
        have k21_h3 : k21_cond3 L k = 1#1 := (cond3_iff L k).mpr (by omega)
        have k21_h4 : k21_cond4 k = 1#1 := (cond4_iff k).mpr (by omega)
        have k21_h5 : k21_cond5 L k = 1#1 := (cond5_iff L k).mpr (by first | (unfold valid big at *; omega) | (unfold big at *; omega) | omega)
        have k21_h6 : k21_cond6 L k = 1#1 := (cond6_iff L k).mpr (by first | (unfold valid big at *; omega) | (unfold big at *; omega) | omega)
        have v0 : valid L (2 * k.val) := by unfold valid big at *; omega
        have v1 : valid L (2 * k.val + 1) := by unfold valid big at *; omega
        have v2 : valid L (2 * k.val + 2) := by unfold valid big at *; omega
        have v3' : valid L (2 * k.val + 3) := by unfold valid big at *; omega
        have hm0 : 2 ≤ 2 * k.val ∧ valid L (2 * k.val - 2) := ⟨by omega, by unfold valid big at *; omega⟩
        have hm1 : 2 ≤ 2 * k.val + 1 ∧ valid L (2 * k.val + 1 - 2) := ⟨by omega, by unfold valid big at *; omega⟩
        ihave S8 := (Entails.of_eq (inSlotV_pos d L fx v0)) $$ S8
        icases S8 with ⟨%g4, %hin4, F8⟩
        ihave S9 := (Entails.of_eq (inSlotV_pos d L fx v1)) $$ S9
        icases S9 with ⟨%g5, %hin5, F9⟩
        ihave S10 := (Entails.of_eq (outSlotV_pos d L fx hm0)) $$ S10
        icases S10 with ⟨%g6, F10, R6⟩
        ihave S11 := (Entails.of_eq (outSlotV_pos d L fx hm1)) $$ S11
        icases S11 with ⟨%g7, F11, R7⟩
        ihave HX := (Entails.of_eq (xSet_out (xP d L fx) k.val hk)) $$ HX
        icases HX with ⟨X2, X3, HX⟩
        ihave X2 := (Entails.of_eq (xP_pos d L fx v2)) $$ X2
        ihave X2 := (Entails.of_eq (in_congr d L (off_6 L k v2).symm (in_inb L _) (k21_off6_inb L k k21_h3) fx)) $$ X2
        ihave X3 := (Entails.of_eq (xP_pos d L fx v3')) $$ X3
        ihave X3 := (Entails.of_eq (in_congr d L (off_11 L k v3').symm (in_inb L _) (k21_off11_inb L k k21_h6) fx)) $$ X3
        ihave HOut := (Entails.of_eq (oSet_out (oMix d L fx k.val) k.val hk)) $$ HOut
        icases HOut with ⟨Y0, Y1, HOut⟩
        ihave Y0 := (Entails.of_eq ((oMix_ge d L fx (t := k.val) (n := 2 * k.val) (by omega)).trans (oP_pos (F := F) d L v0))) $$ Y0
        icases Y0 with ⟨%f0, Y0⟩
        ihave Y0 := (Entails.of_eq (out_congr d L (off_5 L k v0).symm (out_inb L _) (k21_off5_inb L k k21_h2) f0)) $$ Y0
        ihave Y1 := (Entails.of_eq ((oMix_ge d L fx (t := k.val) (n := 2 * k.val + 1) (by omega)).trans (oP_pos (F := F) d L v1))) $$ Y1
        icases Y1 with ⟨%f1, Y1⟩
        ihave Y1 := (Entails.of_eq (out_congr d L (off_10 L k v1).symm (out_inb L _) (k21_off10_inb L k k21_h5) f1)) $$ Y1
        sl_exec
        sl_for (laneV0 d L g4) $$ [F8_dst R6]
        case region =>
          intro (j : Fin k21_t2_loop.trips) _
          unfold laneV0
          iintro ⟨HA, %g, HB, %hl⟩
          sl_exec
          sl_step
          isplitl [HA]; · iexact HA
          iexists _; isplitl [HB]; · iexact HB
          ipureintro; exact lanes_step d L a4 a6 g4 g j _ _ hl
        · unfold laneV0
          isplitl [F8_dst]; · iexact F8_dst
          iexists _; isplitl [R6]; · iexact R6
          ipureintro; exact lanes_zero d L a4 a6 g4 _
        iintro %_ HI
        unfold laneV0
        icases HI with ⟨H4, %g6', H6, %hl6⟩
        have hl6 : Lanes d L a4 a6 g4 g6' 200 := Eq.mp (congrArg (Lanes d L a4 a6 g4 g6') trips2) hl6
        sl_exec
        sl_for (laneV1 d L g5) $$ [F9_dst R7]
        case region =>
          intro (j : Fin k21_t3_loop.trips) _
          unfold laneV1
          iintro ⟨HA, %g, HB, %hl⟩
          sl_exec
          sl_step
          isplitl [HA]; · iexact HA
          iexists _; isplitl [HB]; · iexact HB
          ipureintro; exact lanes_step' d L a5 a7 g5 g j _ _ hl
        · unfold laneV1
          isplitl [F9_dst]; · iexact F9_dst
          iexists _; isplitl [R7]; · iexact R7
          ipureintro; exact lanes_zero d L a5 a7 g5 _
        iintro %_ HI
        unfold laneV1
        icases HI with ⟨H5, %g7', H7, %hl7⟩
        have hl7 : Lanes d L a5 a7 g5 g7' 200 := Eq.mp (congrArg (Lanes d L a5 a7 g5 g7') trips3) hl7
        sl_exec
        sl_step
        isplitr; · iexact Hmw
        isplitl [HO]
        · iexists _; isplitr
          rotate_left
          · iexact HO
          ipureintro; intro p hp
          rcases Finset.mem_insert.mp hp with rfl | hp
          · exact .inr rfl
          rcases Finset.mem_insert.mp hp with rfl | hp
          · exact .inr rfl
          rcases Finset.mem_insert.mp hp with rfl | hp
          · exact .inr rfl
          rcases Finset.mem_insert.mp hp with rfl | hp
          · exact .inr rfl
          exact hW' p hp
        isplitl [HX F8_src F9_src]
        · iapply (Entails.of_eq (xSet_in (xP d L fx) k.val hk).symm)
          isplitl [F8_src]; · iapply (Entails.of_eq (xP_pos d L fx v0).symm); iexact F8_src
          isplitl [F9_src]; · iapply (Entails.of_eq (xP_pos d L fx v1).symm); iexact F9_src
          iexact HX
        isplitl [HOut F10_dst F11_dst]
        · iapply (Entails.of_eq (oSet_in (oMix d L fx (k.val + 1)) k.val hk (by omega)).symm)
          isplitl [F10_dst]; · iapply (Entails.of_eq ((oMix_lt d L fx (t := k.val + 1) (n := 2 * k.val - 2) (by omega)).trans (oQ_pos d L fx hm0.2)).symm); iexact F10_dst
          isplitl [F11_dst]
          · iapply (Entails.of_eq ((oMix_lt d L fx (t := k.val + 1) (n := 2 * k.val - 1) (by omega)).trans (oQ_pos d L fx (n := 2 * k.val - 1) (by have := hm1.2; rwa [show 2 * k.val + 1 - 2 = 2 * k.val - 1 by omega] at this))).symm)
            iapply (Entails.of_eq (congrArg (oqPiece d L fx) (show 2 * k.val + 1 - 2 = 2 * k.val - 1 by omega))); iexact F11_dst
          iapply (Entails.of_eq (oMix_core d L fx k.val)); iexact HOut
        isplitl [F8]
        · iapply (Entails.of_eq (congrArg (inSlotV d L fx a4 cc21_scratch4.sem) (show 2 * k.val + 2 = 2 * (k.val + 1) by ring)))
          iapply (fl_inV d L fx (off_6 L k v2) (k21_off6_inb L k k21_h3) v2 a4 cc21_scratch4.sem); iexists _, _
          isplitr
          rotate_left
          · iexact F8
          ipureintro; intro y; rfl
        isplitl [F10 H6]
        · iapply (Entails.of_eq (congrArg (outSlotV d L fx a6 cc21_scratch6.sem) (show 2 * k.val + 2 = 2 * (k.val + 1) by ring)))
          iapply (fl_outV d L fx (off_5 L k v0) (k21_off5_inb L k k21_h2) v0 a4 a6 cc21_scratch6.sem f0 g4 g6' hl6 hin4); iexists _
          isplitr
          rotate_left
          · isplitl [F10]; · iexact F10
            iexact H6
          ipureintro; intro y; rfl
        isplitl [F9]
        · iapply (Entails.of_eq (congrArg (inSlotV d L fx a5 cc21_scratch5.sem) (show 2 * k.val + 3 = 2 * (k.val + 1) + 1 by ring)))
          iapply (fl_inV d L fx (off_11 L k v3') (k21_off11_inb L k k21_h6) v3' a5 cc21_scratch5.sem); iexists _, _
          isplitr
          rotate_left
          · iexact F9
          ipureintro; intro y; rfl
        · iapply (Entails.of_eq (congrArg (outSlotV d L fx a7 cc21_scratch7.sem) (show 2 * k.val + 1 + 2 = 2 * (k.val + 1) + 1 by ring)))
          iapply (fl_outV d L fx (off_10 L k v1) (k21_off10_inb L k k21_h5) v1 a5 a7 cc21_scratch7.sem f1 g5 g7' hl7 hin5); iexists _
          isplitr
          rotate_left
          · isplitl [F11]; · iexact F11
            iexact H7
          ipureintro; intro y; rfl
      · by_cases h6 : k.val = 6
        · have hb : ¬ big L := fun hb => v3 (Or.inr ⟨by omega, hb⟩)
          -- trip 6 of a tile with fifteen pieces: no sixteenth piece to fetch
          have k21_h1 : k21_cond1 k = 1#1 := (cond1_iff k).mpr (by omega)
          have k21_h2 : k21_cond2 L k = 1#1 := cond2_iff L k
          have k21_h3 : k21_cond3 L k = 1#1 := (cond3_iff L k).mpr (by omega)
          have k21_h4 : k21_cond4 k = 1#1 := (cond4_iff k).mpr (by omega)
          have k21_h5 : k21_cond5 L k = 1#1 := (cond5_iff L k).mpr (by first | (unfold valid big at *; omega) | (unfold big at *; omega) | omega)
          have k21_h6 : ¬ k21_cond6 L k = 1#1 := fun h => absurd ((cond6_iff L k).mp h) (by first | (unfold valid big at *; omega) | (unfold big at *; omega) | omega)
          have v0 : valid L (2 * k.val) := by unfold valid big at *; omega
          have v1 : valid L (2 * k.val + 1) := by unfold valid big at *; omega
          have v2 : valid L (2 * k.val + 2) := by unfold valid big at *; omega
          have v3' : ¬ valid L (2 * k.val + 3) := by unfold valid big at *; omega
          have hm0 : 2 ≤ 2 * k.val ∧ valid L (2 * k.val - 2) := ⟨by omega, by unfold valid big at *; omega⟩
          have hm1 : 2 ≤ 2 * k.val + 1 ∧ valid L (2 * k.val + 1 - 2) := ⟨by omega, by unfold valid big at *; omega⟩
          ihave S8 := (Entails.of_eq (inSlotV_pos d L fx v0)) $$ S8
          icases S8 with ⟨%g4, %hin4, F8⟩
          ihave S9 := (Entails.of_eq (inSlotV_pos d L fx v1)) $$ S9
          icases S9 with ⟨%g5, %hin5, F9⟩
          ihave S10 := (Entails.of_eq (outSlotV_pos d L fx hm0)) $$ S10
          icases S10 with ⟨%g6, F10, R6⟩
          ihave S11 := (Entails.of_eq (outSlotV_pos d L fx hm1)) $$ S11
          icases S11 with ⟨%g7, F11, R7⟩
          ihave HX := (Entails.of_eq (xSet_out (xP d L fx) k.val hk)) $$ HX
          icases HX with ⟨X2, -, HX⟩
          ihave X2 := (Entails.of_eq (xP_pos d L fx v2)) $$ X2
          ihave X2 := (Entails.of_eq (in_congr d L (off_6 L k v2).symm (in_inb L _) (k21_off6_inb L k k21_h3) fx)) $$ X2
          ihave HOut := (Entails.of_eq (oSet_out (oMix d L fx k.val) k.val hk)) $$ HOut
          icases HOut with ⟨Y0, Y1, HOut⟩
          ihave Y0 := (Entails.of_eq ((oMix_ge d L fx (t := k.val) (n := 2 * k.val) (by omega)).trans (oP_pos (F := F) d L v0))) $$ Y0
          icases Y0 with ⟨%f0, Y0⟩
          ihave Y0 := (Entails.of_eq (out_congr d L (off_5 L k v0).symm (out_inb L _) (k21_off5_inb L k k21_h2) f0)) $$ Y0
          ihave Y1 := (Entails.of_eq ((oMix_ge d L fx (t := k.val) (n := 2 * k.val + 1) (by omega)).trans (oP_pos (F := F) d L v1))) $$ Y1
          icases Y1 with ⟨%f1, Y1⟩
          ihave Y1 := (Entails.of_eq (out_congr d L (off_10 L k v1).symm (out_inb L _) (k21_off10_inb L k k21_h5) f1)) $$ Y1
          sl_exec
          sl_for (laneV0 d L g4) $$ [F8_dst R6]
          case region =>
            intro (j : Fin k21_t2_loop.trips) _
            unfold laneV0
            iintro ⟨HA, %g, HB, %hl⟩
            sl_exec
            sl_step
            isplitl [HA]; · iexact HA
            iexists _; isplitl [HB]; · iexact HB
            ipureintro; exact lanes_step d L a4 a6 g4 g j _ _ hl
          · unfold laneV0
            isplitl [F8_dst]; · iexact F8_dst
            iexists _; isplitl [R6]; · iexact R6
            ipureintro; exact lanes_zero d L a4 a6 g4 _
          iintro %_ HI
          unfold laneV0
          icases HI with ⟨H4, %g6', H6, %hl6⟩
          have hl6 : Lanes d L a4 a6 g4 g6' 200 := Eq.mp (congrArg (Lanes d L a4 a6 g4 g6') trips2) hl6
          sl_exec
          sl_for (laneV1 d L g5) $$ [F9_dst R7]
          case region =>
            intro (j : Fin k21_t3_loop.trips) _
            unfold laneV1
            iintro ⟨HA, %g, HB, %hl⟩
            sl_exec
            sl_step
            isplitl [HA]; · iexact HA
            iexists _; isplitl [HB]; · iexact HB
            ipureintro; exact lanes_step' d L a5 a7 g5 g j _ _ hl
          · unfold laneV1
            isplitl [F9_dst]; · iexact F9_dst
            iexists _; isplitl [R7]; · iexact R7
            ipureintro; exact lanes_zero d L a5 a7 g5 _
          iintro %_ HI
          unfold laneV1
          icases HI with ⟨H5, %g7', H7, %hl7⟩
          have hl7 : Lanes d L a5 a7 g5 g7' 200 := Eq.mp (congrArg (Lanes d L a5 a7 g5 g7') trips3) hl7
          sl_exec
          sl_step
          isplitr; · iexact Hmw
          isplitl [HO]
          · iexists _; isplitr
            rotate_left
            · iexact HO
            ipureintro; intro p hp
            rcases Finset.mem_insert.mp hp with rfl | hp
            · exact .inr rfl
            rcases Finset.mem_insert.mp hp with rfl | hp
            · exact .inr rfl
            rcases Finset.mem_insert.mp hp with rfl | hp
            · exact .inr rfl
            rcases Finset.mem_insert.mp hp with rfl | hp
            · exact .inr rfl
            exact hW' p hp
          isplitl [HX F8_src F9_src]
          · iapply (Entails.of_eq (xSet_in (xP d L fx) k.val hk).symm)
            isplitl [F8_src]; · iapply (Entails.of_eq (xP_pos d L fx v0).symm); iexact F8_src
            isplitl [F9_src]; · iapply (Entails.of_eq (xP_pos d L fx v1).symm); iexact F9_src
            iexact HX
          isplitl [HOut F10_dst F11_dst]
          · iapply (Entails.of_eq (oSet_in (oMix d L fx (k.val + 1)) k.val hk (by omega)).symm)
            isplitl [F10_dst]; · iapply (Entails.of_eq ((oMix_lt d L fx (t := k.val + 1) (n := 2 * k.val - 2) (by omega)).trans (oQ_pos d L fx hm0.2)).symm); iexact F10_dst
            isplitl [F11_dst]
            · iapply (Entails.of_eq ((oMix_lt d L fx (t := k.val + 1) (n := 2 * k.val - 1) (by omega)).trans (oQ_pos d L fx (n := 2 * k.val - 1) (by have := hm1.2; rwa [show 2 * k.val + 1 - 2 = 2 * k.val - 1 by omega] at this))).symm)
              iapply (Entails.of_eq (congrArg (oqPiece d L fx) (show 2 * k.val + 1 - 2 = 2 * k.val - 1 by omega))); iexact F11_dst
            iapply (Entails.of_eq (oMix_core d L fx k.val)); iexact HOut
          isplitl [F8]
          · iapply (Entails.of_eq (congrArg (inSlotV d L fx a4 cc21_scratch4.sem) (show 2 * k.val + 2 = 2 * (k.val + 1) by ring)))
            iapply (fl_inV d L fx (off_6 L k v2) (k21_off6_inb L k k21_h3) v2 a4 cc21_scratch4.sem); iexists _, _
            isplitr
            rotate_left
            · iexact F8
            ipureintro; intro y; rfl
          isplitl [F10 H6]
          · iapply (Entails.of_eq (congrArg (outSlotV d L fx a6 cc21_scratch6.sem) (show 2 * k.val + 2 = 2 * (k.val + 1) by ring)))
            iapply (fl_outV d L fx (off_5 L k v0) (k21_off5_inb L k k21_h2) v0 a4 a6 cc21_scratch6.sem f0 g4 g6' hl6 hin4); iexists _
            isplitr
            rotate_left
            · isplitl [F10]; · iexact F10
              iexact H6
            ipureintro; intro y; rfl
          isplitl [H5 F9]
          · iapply (Entails.of_eq (congrArg (inSlotV d L fx a5 cc21_scratch5.sem) (show 2 * k.val + 3 = 2 * (k.val + 1) + 1 by ring)))
            iapply (Entails.of_eq (inSlotV_neg d L fx v3').symm)
            isplitl [H5]; · iexists _; iexact H5
            iexact F9
          · iapply (Entails.of_eq (congrArg (outSlotV d L fx a7 cc21_scratch7.sem) (show 2 * k.val + 1 + 2 = 2 * (k.val + 1) + 1 by ring)))
            iapply (fl_outV d L fx (off_10 L k v1) (k21_off10_inb L k k21_h5) v1 a5 a7 cc21_scratch7.sem f1 g5 g7' hl7 hin5); iexists _
            isplitr
            rotate_left
            · isplitl [F11]; · iexact F11
              iexact H7
            ipureintro; intro y; rfl
        · have h7 : k.val = 7 := by unfold valid at v3; omega
          by_cases hb : big L
          · -- the last trip of a tile with sixteen pieces: nothing more to fetch
            have k21_h1 : k21_cond1 k = 1#1 := (cond1_iff k).mpr (by omega)
            have k21_h2 : k21_cond2 L k = 1#1 := cond2_iff L k
            have k21_h3 : ¬ k21_cond3 L k = 1#1 := fun h => absurd ((cond3_iff L k).mp h) (by omega)
            have k21_h4 : k21_cond4 k = 1#1 := (cond4_iff k).mpr (by omega)
            have k21_h5 : k21_cond5 L k = 1#1 := (cond5_iff L k).mpr (by first | (unfold valid big at *; omega) | (unfold big at *; omega) | omega)
            have k21_h6 : ¬ k21_cond6 L k = 1#1 := fun h => absurd ((cond6_iff L k).mp h) (by first | (unfold valid big at *; omega) | (unfold big at *; omega) | omega)
            have v0 : valid L (2 * k.val) := by unfold valid big at *; omega
            have v1 : valid L (2 * k.val + 1) := by unfold valid big at *; omega
            have v2 : ¬ valid L (2 * k.val + 2) := by unfold valid big at *; omega
            have v3' : ¬ valid L (2 * k.val + 3) := by unfold valid big at *; omega
            have hm0 : 2 ≤ 2 * k.val ∧ valid L (2 * k.val - 2) := ⟨by omega, by unfold valid big at *; omega⟩
            have hm1 : 2 ≤ 2 * k.val + 1 ∧ valid L (2 * k.val + 1 - 2) := ⟨by omega, by unfold valid big at *; omega⟩
            ihave S8 := (Entails.of_eq (inSlotV_pos d L fx v0)) $$ S8
            icases S8 with ⟨%g4, %hin4, F8⟩
            ihave S9 := (Entails.of_eq (inSlotV_pos d L fx v1)) $$ S9
            icases S9 with ⟨%g5, %hin5, F9⟩
            ihave S10 := (Entails.of_eq (outSlotV_pos d L fx hm0)) $$ S10
            icases S10 with ⟨%g6, F10, R6⟩
            ihave S11 := (Entails.of_eq (outSlotV_pos d L fx hm1)) $$ S11
            icases S11 with ⟨%g7, F11, R7⟩
            ihave HX := (Entails.of_eq (xSet_out (xP d L fx) k.val hk)) $$ HX
            icases HX with ⟨-, -, HX⟩
            ihave HOut := (Entails.of_eq (oSet_out (oMix d L fx k.val) k.val hk)) $$ HOut
            icases HOut with ⟨Y0, Y1, HOut⟩
            ihave Y0 := (Entails.of_eq ((oMix_ge d L fx (t := k.val) (n := 2 * k.val) (by omega)).trans (oP_pos (F := F) d L v0))) $$ Y0
            icases Y0 with ⟨%f0, Y0⟩
            ihave Y0 := (Entails.of_eq (out_congr d L (off_5 L k v0).symm (out_inb L _) (k21_off5_inb L k k21_h2) f0)) $$ Y0
            ihave Y1 := (Entails.of_eq ((oMix_ge d L fx (t := k.val) (n := 2 * k.val + 1) (by omega)).trans (oP_pos (F := F) d L v1))) $$ Y1
            icases Y1 with ⟨%f1, Y1⟩
            ihave Y1 := (Entails.of_eq (out_congr d L (off_10 L k v1).symm (out_inb L _) (k21_off10_inb L k k21_h5) f1)) $$ Y1
            sl_exec
            sl_for (laneV0 d L g4) $$ [F8_dst R6]
            case region =>
              intro (j : Fin k21_t2_loop.trips) _
              unfold laneV0
              iintro ⟨HA, %g, HB, %hl⟩
              sl_exec
              sl_step
              isplitl [HA]; · iexact HA
              iexists _; isplitl [HB]; · iexact HB
              ipureintro; exact lanes_step d L a4 a6 g4 g j _ _ hl
            · unfold laneV0
              isplitl [F8_dst]; · iexact F8_dst
              iexists _; isplitl [R6]; · iexact R6
              ipureintro; exact lanes_zero d L a4 a6 g4 _
            iintro %_ HI
            unfold laneV0
            icases HI with ⟨H4, %g6', H6, %hl6⟩
            have hl6 : Lanes d L a4 a6 g4 g6' 200 := Eq.mp (congrArg (Lanes d L a4 a6 g4 g6') trips2) hl6
            sl_exec
            sl_for (laneV1 d L g5) $$ [F9_dst R7]
            case region =>
              intro (j : Fin k21_t3_loop.trips) _
              unfold laneV1
              iintro ⟨HA, %g, HB, %hl⟩
              sl_exec
              sl_step
              isplitl [HA]; · iexact HA
              iexists _; isplitl [HB]; · iexact HB
              ipureintro; exact lanes_step' d L a5 a7 g5 g j _ _ hl
            · unfold laneV1
              isplitl [F9_dst]; · iexact F9_dst
              iexists _; isplitl [R7]; · iexact R7
              ipureintro; exact lanes_zero d L a5 a7 g5 _
            iintro %_ HI
            unfold laneV1
            icases HI with ⟨H5, %g7', H7, %hl7⟩
            have hl7 : Lanes d L a5 a7 g5 g7' 200 := Eq.mp (congrArg (Lanes d L a5 a7 g5 g7') trips3) hl7
            sl_exec
            sl_step
            isplitr; · iexact Hmw
            isplitl [HO]
            · iexists _; isplitr
              rotate_left
              · iexact HO
              ipureintro; intro p hp
              rcases Finset.mem_insert.mp hp with rfl | hp
              · exact .inr rfl
              rcases Finset.mem_insert.mp hp with rfl | hp
              · exact .inr rfl
              rcases Finset.mem_insert.mp hp with rfl | hp
              · exact .inr rfl
              rcases Finset.mem_insert.mp hp with rfl | hp
              · exact .inr rfl
              exact hW' p hp
            isplitl [HX F8_src F9_src]
            · iapply (Entails.of_eq (xSet_in (xP d L fx) k.val hk).symm)
              isplitl [F8_src]; · iapply (Entails.of_eq (xP_pos d L fx v0).symm); iexact F8_src
              isplitl [F9_src]; · iapply (Entails.of_eq (xP_pos d L fx v1).symm); iexact F9_src
              iexact HX
            isplitl [HOut F10_dst F11_dst]
            · iapply (Entails.of_eq (oSet_in (oMix d L fx (k.val + 1)) k.val hk (by omega)).symm)
              isplitl [F10_dst]; · iapply (Entails.of_eq ((oMix_lt d L fx (t := k.val + 1) (n := 2 * k.val - 2) (by omega)).trans (oQ_pos d L fx hm0.2)).symm); iexact F10_dst
              isplitl [F11_dst]
              · iapply (Entails.of_eq ((oMix_lt d L fx (t := k.val + 1) (n := 2 * k.val - 1) (by omega)).trans (oQ_pos d L fx (n := 2 * k.val - 1) (by have := hm1.2; rwa [show 2 * k.val + 1 - 2 = 2 * k.val - 1 by omega] at this))).symm)
                iapply (Entails.of_eq (congrArg (oqPiece d L fx) (show 2 * k.val + 1 - 2 = 2 * k.val - 1 by omega))); iexact F11_dst
              iapply (Entails.of_eq (oMix_core d L fx k.val)); iexact HOut
            isplitl [H4 F8]
            · iapply (Entails.of_eq (congrArg (inSlotV d L fx a4 cc21_scratch4.sem) (show 2 * k.val + 2 = 2 * (k.val + 1) by ring)))
              iapply (Entails.of_eq (inSlotV_neg d L fx v2).symm)
              isplitl [H4]; · iexists _; iexact H4
              iexact F8
            isplitl [F10 H6]
            · iapply (Entails.of_eq (congrArg (outSlotV d L fx a6 cc21_scratch6.sem) (show 2 * k.val + 2 = 2 * (k.val + 1) by ring)))
              iapply (fl_outV d L fx (off_5 L k v0) (k21_off5_inb L k k21_h2) v0 a4 a6 cc21_scratch6.sem f0 g4 g6' hl6 hin4); iexists _
              isplitr
              rotate_left
              · isplitl [F10]; · iexact F10
                iexact H6
              ipureintro; intro y; rfl
            isplitl [H5 F9]
            · iapply (Entails.of_eq (congrArg (inSlotV d L fx a5 cc21_scratch5.sem) (show 2 * k.val + 3 = 2 * (k.val + 1) + 1 by ring)))
              iapply (Entails.of_eq (inSlotV_neg d L fx v3').symm)
              isplitl [H5]; · iexists _; iexact H5
              iexact F9
            · iapply (Entails.of_eq (congrArg (outSlotV d L fx a7 cc21_scratch7.sem) (show 2 * k.val + 1 + 2 = 2 * (k.val + 1) + 1 by ring)))
              iapply (fl_outV d L fx (off_10 L k v1) (k21_off10_inb L k k21_h5) v1 a5 a7 cc21_scratch7.sem f1 g5 g7' hl7 hin5); iexists _
              isplitr
              rotate_left
              · isplitl [F11]; · iexact F11
                iexact H7
              ipureintro; intro y; rfl
          · -- the last trip of a tile with fifteen pieces: the second slot only drains
            have k21_h1 : k21_cond1 k = 1#1 := (cond1_iff k).mpr (by omega)
            have k21_h2 : k21_cond2 L k = 1#1 := cond2_iff L k
            have k21_h3 : ¬ k21_cond3 L k = 1#1 := fun h => absurd ((cond3_iff L k).mp h) (by omega)
            have k21_h4 : k21_cond4 k = 1#1 := (cond4_iff k).mpr (by omega)
            have k21_h5 : ¬ k21_cond5 L k = 1#1 := fun h => absurd ((cond5_iff L k).mp h) (by first | (unfold valid big at *; omega) | (unfold big at *; omega) | omega)
            have k21_h6 : ¬ k21_cond6 L k = 1#1 := fun h => absurd ((cond6_iff L k).mp h) (by first | (unfold valid big at *; omega) | (unfold big at *; omega) | omega)
            have v0 : valid L (2 * k.val) := by unfold valid big at *; omega
            have v1 : ¬ valid L (2 * k.val + 1) := by unfold valid big at *; omega
            have v2 : ¬ valid L (2 * k.val + 2) := by unfold valid big at *; omega
            have v3' : ¬ valid L (2 * k.val + 3) := by unfold valid big at *; omega
            have hm0 : 2 ≤ 2 * k.val ∧ valid L (2 * k.val - 2) := ⟨by omega, by unfold valid big at *; omega⟩
            have hm1 : 2 ≤ 2 * k.val + 1 ∧ valid L (2 * k.val + 1 - 2) := ⟨by omega, by unfold valid big at *; omega⟩
            ihave S8 := (Entails.of_eq (inSlotV_pos d L fx v0)) $$ S8
            icases S8 with ⟨%g4, %hin4, F8⟩
            ihave S9 := (Entails.of_eq (inSlotV_neg d L fx v1)) $$ S9
            icases S9 with ⟨⟨%g5, H5⟩, F9⟩
            ihave S10 := (Entails.of_eq (outSlotV_pos d L fx hm0)) $$ S10
            icases S10 with ⟨%g6, F10, R6⟩
            ihave S11 := (Entails.of_eq (outSlotV_pos d L fx hm1)) $$ S11
            icases S11 with ⟨%g7, F11, R7⟩
            ihave HX := (Entails.of_eq (xSet_out (xP d L fx) k.val hk)) $$ HX
            icases HX with ⟨-, -, HX⟩
            ihave HOut := (Entails.of_eq (oSet_out (oMix d L fx k.val) k.val hk)) $$ HOut
            icases HOut with ⟨Y0, -, HOut⟩
            ihave Y0 := (Entails.of_eq ((oMix_ge d L fx (t := k.val) (n := 2 * k.val) (by omega)).trans (oP_pos (F := F) d L v0))) $$ Y0
            icases Y0 with ⟨%f0, Y0⟩
            ihave Y0 := (Entails.of_eq (out_congr d L (off_5 L k v0).symm (out_inb L _) (k21_off5_inb L k k21_h2) f0)) $$ Y0
            sl_exec
            sl_for (laneV0 d L g4) $$ [F8_dst R6]
            case region =>
              intro (j : Fin k21_t2_loop.trips) _
              unfold laneV0
              iintro ⟨HA, %g, HB, %hl⟩
              sl_exec
              sl_step
              isplitl [HA]; · iexact HA
              iexists _; isplitl [HB]; · iexact HB
              ipureintro; exact lanes_step d L a4 a6 g4 g j _ _ hl
            · unfold laneV0
              isplitl [F8_dst]; · iexact F8_dst
              iexists _; isplitl [R6]; · iexact R6
              ipureintro; exact lanes_zero d L a4 a6 g4 _
            iintro %_ HI
            unfold laneV0
            icases HI with ⟨H4, %g6', H6, %hl6⟩
            have hl6 : Lanes d L a4 a6 g4 g6' 200 := Eq.mp (congrArg (Lanes d L a4 a6 g4 g6') trips2) hl6
            sl_exec
            sl_step
            isplitr; · iexact Hmw
            isplitl [HO]
            · iexists _; isplitr
              rotate_left
              · iexact HO
              ipureintro; intro p hp
              rcases Finset.mem_insert.mp hp with rfl | hp
              · exact .inr rfl
              rcases Finset.mem_insert.mp hp with rfl | hp
              · exact .inr rfl
              rcases Finset.mem_insert.mp hp with rfl | hp
              · exact .inr rfl
              exact hW' p hp
            isplitl [HX F8_src]
            · iapply (Entails.of_eq (xSet_in (xP d L fx) k.val hk).symm)
              isplitl [F8_src]; · iapply (Entails.of_eq (xP_pos d L fx v0).symm); iexact F8_src
              isplitr; · iapply (Entails.of_eq (xP_neg d L fx v1).symm); iempintro
              iexact HX
            isplitl [HOut F10_dst F11_dst]
            · iapply (Entails.of_eq (oSet_in (oMix d L fx (k.val + 1)) k.val hk (by omega)).symm)
              isplitl [F10_dst]; · iapply (Entails.of_eq ((oMix_lt d L fx (t := k.val + 1) (n := 2 * k.val - 2) (by omega)).trans (oQ_pos d L fx hm0.2)).symm); iexact F10_dst
              isplitl [F11_dst]
              · iapply (Entails.of_eq ((oMix_lt d L fx (t := k.val + 1) (n := 2 * k.val - 1) (by omega)).trans (oQ_pos d L fx (n := 2 * k.val - 1) (by have := hm1.2; rwa [show 2 * k.val + 1 - 2 = 2 * k.val - 1 by omega] at this))).symm)
                iapply (Entails.of_eq (congrArg (oqPiece d L fx) (show 2 * k.val + 1 - 2 = 2 * k.val - 1 by omega))); iexact F11_dst
              iapply (Entails.of_eq (oMix_core d L fx k.val)); iexact HOut
            isplitl [H4 F8]
            · iapply (Entails.of_eq (congrArg (inSlotV d L fx a4 cc21_scratch4.sem) (show 2 * k.val + 2 = 2 * (k.val + 1) by ring)))
              iapply (Entails.of_eq (inSlotV_neg d L fx v2).symm)
              isplitl [H4]; · iexists _; iexact H4
              iexact F8
            isplitl [F10 H6]
            · iapply (Entails.of_eq (congrArg (outSlotV d L fx a6 cc21_scratch6.sem) (show 2 * k.val + 2 = 2 * (k.val + 1) by ring)))
              iapply (fl_outV d L fx (off_5 L k v0) (k21_off5_inb L k k21_h2) v0 a4 a6 cc21_scratch6.sem f0 g4 g6' hl6 hin4); iexists _
              isplitr
              rotate_left
              · isplitl [F10]; · iexact F10
                iexact H6
              ipureintro; intro y; rfl
            isplitl [H5 F9]
            · iapply (Entails.of_eq (congrArg (inSlotV d L fx a5 cc21_scratch5.sem) (show 2 * k.val + 3 = 2 * (k.val + 1) + 1 by ring)))
              iapply (Entails.of_eq (inSlotV_neg d L fx v3').symm)
              isplitl [H5]; · iexists _; iexact H5
              iexact F9
            · iapply (Entails.of_eq (outSlotV_neg d L fx (m := 2 * (k.val + 1) + 1) (by intro h; apply v1; have := h.2; rwa [show 2 * (k.val + 1) + 1 - 2 = 2 * k.val + 1 by omega] at this)).symm)
              isplitl [R7]; · iexists _; iexact R7
              iexact F11
    · have hk0 : k.val = 0 := by omega
      -- the first trip: nothing to drain
      have k21_h1 : ¬ k21_cond1 k = 1#1 := fun h => absurd ((cond1_iff k).mp h) (by omega)
      have k21_h2 : k21_cond2 L k = 1#1 := cond2_iff L k
      have k21_h3 : k21_cond3 L k = 1#1 := (cond3_iff L k).mpr (by omega)
      have k21_h4 : ¬ k21_cond4 k = 1#1 := fun h => absurd ((cond4_iff k).mp h) (by omega)
      have k21_h5 : k21_cond5 L k = 1#1 := (cond5_iff L k).mpr (by first | (unfold valid big at *; omega) | (unfold big at *; omega) | omega)
      have k21_h6 : k21_cond6 L k = 1#1 := (cond6_iff L k).mpr (by first | (unfold valid big at *; omega) | (unfold big at *; omega) | omega)
      have v0 : valid L (2 * k.val) := by unfold valid big at *; omega
      have v1 : valid L (2 * k.val + 1) := by unfold valid big at *; omega
      have v2 : valid L (2 * k.val + 2) := by unfold valid big at *; omega
      have v3' : valid L (2 * k.val + 3) := by unfold valid big at *; omega
      have hm0 : ¬ (2 ≤ 2 * k.val ∧ valid L (2 * k.val - 2)) := by omega
      have hm1 : ¬ (2 ≤ 2 * k.val + 1 ∧ valid L (2 * k.val + 1 - 2)) := by omega
      ihave S8 := (Entails.of_eq (inSlotV_pos d L fx v0)) $$ S8
      icases S8 with ⟨%g4, %hin4, F8⟩
      ihave S9 := (Entails.of_eq (inSlotV_pos d L fx v1)) $$ S9
      icases S9 with ⟨%g5, %hin5, F9⟩
      ihave S10 := (Entails.of_eq (outSlotV_neg d L fx hm0)) $$ S10
      icases S10 with ⟨⟨%g6, R6⟩, F10⟩
      ihave S11 := (Entails.of_eq (outSlotV_neg d L fx hm1)) $$ S11
      icases S11 with ⟨⟨%g7, R7⟩, F11⟩
      ihave HX := (Entails.of_eq (xSet_out (xP d L fx) k.val hk)) $$ HX
      icases HX with ⟨X2, X3, HX⟩
      ihave X2 := (Entails.of_eq (xP_pos d L fx v2)) $$ X2
      ihave X2 := (Entails.of_eq (in_congr d L (off_6 L k v2).symm (in_inb L _) (k21_off6_inb L k k21_h3) fx)) $$ X2
      ihave X3 := (Entails.of_eq (xP_pos d L fx v3')) $$ X3
      ihave X3 := (Entails.of_eq (in_congr d L (off_11 L k v3').symm (in_inb L _) (k21_off11_inb L k k21_h6) fx)) $$ X3
      ihave HOut := (Entails.of_eq (oSet_out (oMix d L fx k.val) k.val hk)) $$ HOut
      icases HOut with ⟨Y0, Y1, HOut⟩
      ihave Y0 := (Entails.of_eq ((oMix_ge d L fx (t := k.val) (n := 2 * k.val) (by omega)).trans (oP_pos (F := F) d L v0))) $$ Y0
      icases Y0 with ⟨%f0, Y0⟩
      ihave Y0 := (Entails.of_eq (out_congr d L (off_5 L k v0).symm (out_inb L _) (k21_off5_inb L k k21_h2) f0)) $$ Y0
      ihave Y1 := (Entails.of_eq ((oMix_ge d L fx (t := k.val) (n := 2 * k.val + 1) (by omega)).trans (oP_pos (F := F) d L v1))) $$ Y1
      icases Y1 with ⟨%f1, Y1⟩
      ihave Y1 := (Entails.of_eq (out_congr d L (off_10 L k v1).symm (out_inb L _) (k21_off10_inb L k k21_h5) f1)) $$ Y1
      sl_exec
      sl_for (laneV0 d L g4) $$ [F8_dst R6]
      case region =>
        intro (j : Fin k21_t2_loop.trips) _
        unfold laneV0
        iintro ⟨HA, %g, HB, %hl⟩
        sl_exec
        sl_step
        isplitl [HA]; · iexact HA
        iexists _; isplitl [HB]; · iexact HB
        ipureintro; exact lanes_step d L a4 a6 g4 g j _ _ hl
      · unfold laneV0
        isplitl [F8_dst]; · iexact F8_dst
        iexists _; isplitl [R6]; · iexact R6
        ipureintro; exact lanes_zero d L a4 a6 g4 _
      iintro %_ HI
      unfold laneV0
      icases HI with ⟨H4, %g6', H6, %hl6⟩
      have hl6 : Lanes d L a4 a6 g4 g6' 200 := Eq.mp (congrArg (Lanes d L a4 a6 g4 g6') trips2) hl6
      sl_exec
      sl_for (laneV1 d L g5) $$ [F9_dst R7]
      case region =>
        intro (j : Fin k21_t3_loop.trips) _
        unfold laneV1
        iintro ⟨HA, %g, HB, %hl⟩
        sl_exec
        sl_step
        isplitl [HA]; · iexact HA
        iexists _; isplitl [HB]; · iexact HB
        ipureintro; exact lanes_step' d L a5 a7 g5 g j _ _ hl
      · unfold laneV1
        isplitl [F9_dst]; · iexact F9_dst
        iexists _; isplitl [R7]; · iexact R7
        ipureintro; exact lanes_zero d L a5 a7 g5 _
      iintro %_ HI
      unfold laneV1
      icases HI with ⟨H5, %g7', H7, %hl7⟩
      have hl7 : Lanes d L a5 a7 g5 g7' 200 := Eq.mp (congrArg (Lanes d L a5 a7 g5 g7') trips3) hl7
      sl_exec
      sl_step
      isplitr; · iexact Hmw
      isplitl [HO]
      · iexists _; isplitr
        rotate_left
        · iexact HO
        ipureintro; intro p hp
        rcases Finset.mem_insert.mp hp with rfl | hp
        · exact .inr rfl
        rcases Finset.mem_insert.mp hp with rfl | hp
        · exact .inr rfl
        exact hW' p hp
      isplitl [HX F8_src F9_src]
      · iapply (Entails.of_eq (xSet_in (xP d L fx) k.val hk).symm)
        isplitl [F8_src]; · iapply (Entails.of_eq (xP_pos d L fx v0).symm); iexact F8_src
        isplitl [F9_src]; · iapply (Entails.of_eq (xP_pos d L fx v1).symm); iexact F9_src
        iexact HX
      isplitl [HOut]
      · iapply (Entails.of_eq (congrArg (fun s => bigSep s (oMix d L fx (k.val + 1))) (show oCore k.val = oSet (k.val + 1) by rw [hk0]; decide)))
        iapply (Entails.of_eq (oMix_core d L fx k.val)); iexact HOut
      isplitl [F8]
      · iapply (Entails.of_eq (congrArg (inSlotV d L fx a4 cc21_scratch4.sem) (show 2 * k.val + 2 = 2 * (k.val + 1) by ring)))
        iapply (fl_inV d L fx (off_6 L k v2) (k21_off6_inb L k k21_h3) v2 a4 cc21_scratch4.sem); iexists _, _
        isplitr
        rotate_left
        · iexact F8
        ipureintro; intro y; rfl
      isplitl [F10 H6]
      · iapply (Entails.of_eq (congrArg (outSlotV d L fx a6 cc21_scratch6.sem) (show 2 * k.val + 2 = 2 * (k.val + 1) by ring)))
        iapply (fl_outV d L fx (off_5 L k v0) (k21_off5_inb L k k21_h2) v0 a4 a6 cc21_scratch6.sem f0 g4 g6' hl6 hin4); iexists _
        isplitr
        rotate_left
        · isplitl [F10]; · iexact F10
          iexact H6
        ipureintro; intro y; rfl
      isplitl [F9]
      · iapply (Entails.of_eq (congrArg (inSlotV d L fx a5 cc21_scratch5.sem) (show 2 * k.val + 3 = 2 * (k.val + 1) + 1 by ring)))
        iapply (fl_inV d L fx (off_11 L k v3') (k21_off11_inb L k k21_h6) v3' a5 cc21_scratch5.sem); iexists _, _
        isplitr
        rotate_left
        · iexact F9
        ipureintro; intro y; rfl
      · iapply (Entails.of_eq (congrArg (outSlotV d L fx a7 cc21_scratch7.sem) (show 2 * k.val + 1 + 2 = 2 * (k.val + 1) + 1 by ring)))
        iapply (fl_outV d L fx (off_10 L k v1) (k21_off10_inb L k k21_h5) v1 a5 a7 cc21_scratch7.sem f1 g5 g7' hl7 hin5); iexists _
        isplitr
        rotate_left
        · isplitl [F11]; · iexact F11
          iexact H7
        ipureintro; intro y; rfl
  · unfold invV
    isplitr; · iexact Hmw
    isplitl [HO]
    · iexists W; isplitr
      · ipureintro; exact fun p hp => .inl hp
      · iexact HO
    isplitl [HX]; · iexact HX
    isplitl [HOut]; · iapply (Entails.of_eq (oMix_zero d L fx).symm); iexact HOut
    isplitl [S8]; · iexact S8
    isplitl [H6 Hs10]
    · rw [outSlotV_neg d L fx (by omega)]; isplitl [H6]; · iexists _; iexact H6
      iexact Hs10
    isplitl [S9]; · iexact S9
    rw [outSlotV_neg d L fx (by omega)]; isplitl [H7]; · iexists _; iexact H7
    iexact Hs11
  iintro %acc' HI
  ihave HI := (Entails.of_eq (congrArg (fun t => invV d L O W fx t acc') trips1)) $$ HI
  unfold invV
  icases HI with ⟨-, ⟨%W', %hW', HO⟩, HX, HOut, S8, S10, S9, S11⟩
  have nv16 : ¬ valid L (2 * 8) := by unfold valid; omega
  have nv17 : ¬ valid L (2 * 8 + 1) := by unfold valid; omega
  have hm14 : 2 ≤ 2 * 8 ∧ valid L (2 * 8 - 2) := ⟨by omega, Or.inl (by omega)⟩
  ihave S8 := (Entails.of_eq (inSlotV_neg d L fx nv16)) $$ S8
  icases S8 with ⟨⟨%g4', H4⟩, Hs8⟩
  ihave S9 := (Entails.of_eq (inSlotV_neg d L fx nv17)) $$ S9
  icases S9 with ⟨⟨%g5', H5⟩, Hs9⟩
  ihave S10 := (Entails.of_eq (outSlotV_pos d L fx hm14)) $$ S10
  icases S10 with ⟨%g6', F10, R6⟩
  by_cases hb : big L
  · have k21_h8 : k21_cond8 L = 1#1 := (cond8_iff L).mpr hb
    have hm15 : 2 ≤ 2 * 8 + 1 ∧ valid L (2 * 8 + 1 - 2) := ⟨by omega, Or.inr ⟨by omega, hb⟩⟩
    ihave S11 := (Entails.of_eq (outSlotV_pos d L fx hm15)) $$ S11
    icases S11 with ⟨%g7', F11, R7⟩
    sl_exec
    sl_step
    isplitl [HX]; · iapply (xRange_end d L fx); iexact HX
    isplitl [HOut F10_dst F11_dst]
    · iapply (Entails.of_eq (oRange_end (oQ d L fx)).symm)
      isplitl [F10_dst]; · iapply (Entails.of_eq (oQ_pos d L fx hm14.2).symm); iexact F10_dst
      isplitl [F11_dst]; · iapply (Entails.of_eq (oQ_pos d L fx hm15.2).symm); iexact F11_dst
      iapply (Entails.of_eq (oMix_end d L fx)); iexact HOut
    isplitl [H4]; · iexists _; iexact H4
    isplitl [H5]; · iexists _; iexact H5
    isplitl [R6]; · iexists _; iexact R6
    isplitl [R7]; · iexists _; iexact R7
    isplitl [Hs8]; · iexact Hs8
    isplitl [Hs9]; · iexact Hs9
    isplitl [F10]; · iexact F10
    isplitl [F11]; · iexact F11
    isplitl [HO]
    · iexists _; isplitr
      rotate_left
      · iexact HO
      ipureintro; intro p hp
      rcases Finset.mem_insert.mp hp with rfl | hp
      · exact .inr rfl
      rcases Finset.mem_insert.mp hp with rfl | hp
      · exact .inr rfl
      exact hW' p hp
    iexact HR
  · have k21_h8 : ¬ k21_cond8 L = 1#1 := fun h => hb ((cond8_iff L).mp h)
    have hm15 : ¬ (2 ≤ 2 * 8 + 1 ∧ valid L (2 * 8 + 1 - 2)) := by intro h; have := h.2; unfold valid at this; omega
    ihave S11 := (Entails.of_eq (outSlotV_neg d L fx hm15)) $$ S11
    icases S11 with ⟨⟨%g7', R7⟩, F11⟩
    sl_exec
    sl_step
    isplitl [HX]; · iapply (xRange_end d L fx); iexact HX
    isplitl [HOut F10_dst]
    · iapply (Entails.of_eq (oRange_end (oQ d L fx)).symm)
      isplitl [F10_dst]; · iapply (Entails.of_eq (oQ_pos d L fx hm14.2).symm); iexact F10_dst
      isplitr; · iapply (Entails.of_eq (oQ_neg d L fx (n := 15) (by unfold valid; omega)).symm); iempintro
      iapply (Entails.of_eq (oMix_end d L fx)); iexact HOut
    isplitl [H4]; · iexists _; iexact H4
    isplitl [H5]; · iexists _; iexact H5
    isplitl [R6]; · iexists _; iexact R6
    isplitl [R7]; · iexists _; iexact R7
    isplitl [Hs8]; · iexact Hs8
    isplitl [Hs9]; · iexact Hs9
    isplitl [F10]; · iexact F10
    isplitl [F11]; · iexact F11
    isplitl [HO]
    · iexists _; isplitr
      rotate_left
      · iexact HO
      ipureintro; intro p hp
      rcases Finset.mem_insert.mp hp with rfl | hp
      · exact .inr rfl
      exact hW' p hp
    iexact HR

/-! The subcore's scoped storage: the four staging buffers and the four semaphores of this call, and the rest. -/

abbrev c8 : GSem nD τ sig := (thr d L, SemLoc.dma cc21_scratch4.sem)
abbrev c9 : GSem nD τ sig := (thr d L, SemLoc.dma cc21_scratch5.sem)
abbrev c10 : GSem nD τ sig := (thr d L, SemLoc.dma cc21_scratch6.sem)
abbrev c11 : GSem nD τ sig := (thr d L, SemLoc.dma cc21_scratch7.sem)

omit [FloatOps F] in
theorem ownSems0_V :
    (ownSems0 (thr d L) : sProp 𝕄)
      = iprop(semVal (c8 d L) 0 ∗ semVal (c9 d L) 0 ∗ semVal (c10 d L) 0 ∗ semVal (c11 d L) 0
          ∗ bigSep (((((ownCells (thr d L)).erase (c8 d L)).erase (c9 d L)).erase (c10 d L)).erase (c11 d L)) fun g => semVal g 0) := by
  unfold SparseCore.Cfg.ownSems0
  rw [SparseCore.bigSep_erase' ((mem_ownCells (g := c8 d L)).mpr ⟨rfl, by
      show (SemLoc.dma cc21_scratch4.sem : SemLoc sig).isScoped .scVector = true; decide⟩),
    SparseCore.bigSep_erase' (Finset.mem_erase.mpr ⟨fun e => absurd (Prod.mk.inj e).2 (by decide), (mem_ownCells (g := c9 d L)).mpr ⟨rfl, by
      show (SemLoc.dma cc21_scratch5.sem : SemLoc sig).isScoped .scVector = true; decide⟩⟩),
    SparseCore.bigSep_erase' (Finset.mem_erase.mpr ⟨fun e => absurd (Prod.mk.inj e).2 (by decide), Finset.mem_erase.mpr ⟨fun e => absurd (Prod.mk.inj e).2 (by decide),
      (mem_ownCells (g := c10 d L)).mpr ⟨rfl, by show (SemLoc.dma cc21_scratch6.sem : SemLoc sig).isScoped .scVector = true; decide⟩⟩⟩),
    SparseCore.bigSep_erase' (Finset.mem_erase.mpr ⟨fun e => absurd (Prod.mk.inj e).2 (by decide), Finset.mem_erase.mpr ⟨fun e => absurd (Prod.mk.inj e).2 (by decide),
      Finset.mem_erase.mpr ⟨fun e => absurd (Prod.mk.inj e).2 (by decide),
      (mem_ownCells (g := c11 d L)).mpr ⟨rfl, by show (SemLoc.dma cc21_scratch7.sem : SemLoc sig).isScoped .scVector = true; decide⟩⟩⟩⟩)]

abbrev pV (L : grid21.Coords) : Proc τ := Proc.scVector (cV L) (jV L)

omit [FloatOps F] in
theorem ownBufs_V :
    (ownBufs (thr d L) : sProp 𝕄)
      = iprop((∃ f, (thr d L).loc cc21_scratch0 ↦{fullShare} f) ∗ (∃ f, (thr d L).loc cc21_scratch1 ↦{fullShare} f)
          ∗ (∃ f, (thr d L).loc cc21_scratch2 ↦{fullShare} f) ∗ (∃ f, (thr d L).loc cc21_scratch3 ↦{fullShare} f)
          ∗ bigSep (((((ownRefs (τ := τ) (pV L)).erase ((pV L).devRef cc21_scratch0)).erase ((pV L).devRef cc21_scratch1)).erase
              ((pV L).devRef cc21_scratch2)).erase ((pV L).devRef cc21_scratch3))
              fun b => iprop(∃ f, ((d, b) : Loc nD τ sig) ↦{fullShare} f)) := by
  unfold SparseCore.Cfg.ownBufs
  refine (SparseCore.bigSep_erase' (SparseCore.Cfg.mem_ownRefs_of_owner (p := pV L) (b := (pV L).devRef cc21_scratch0) rfl)).trans ?_
  rw [SparseCore.bigSep_erase' (Finset.mem_erase.mpr ⟨fun e => absurd (Proc.devRef_injective _ e) (show (cc21_scratch1 : Ref sig .scVector) ≠ cc21_scratch0 by decide),
      SparseCore.Cfg.mem_ownRefs_of_owner (p := pV L) (b := (pV L).devRef cc21_scratch1) rfl⟩),
    SparseCore.bigSep_erase' (Finset.mem_erase.mpr ⟨fun e => absurd (Proc.devRef_injective _ e) (show (cc21_scratch2 : Ref sig .scVector) ≠ cc21_scratch1 by decide),
      Finset.mem_erase.mpr ⟨fun e => absurd (Proc.devRef_injective _ e) (show (cc21_scratch2 : Ref sig .scVector) ≠ cc21_scratch0 by decide),
      SparseCore.Cfg.mem_ownRefs_of_owner (p := pV L) (b := (pV L).devRef cc21_scratch2) rfl⟩⟩),
    SparseCore.bigSep_erase' (Finset.mem_erase.mpr ⟨fun e => absurd (Proc.devRef_injective _ e) (show (cc21_scratch3 : Ref sig .scVector) ≠ cc21_scratch2 by decide),
      Finset.mem_erase.mpr ⟨fun e => absurd (Proc.devRef_injective _ e) (show (cc21_scratch3 : Ref sig .scVector) ≠ cc21_scratch1 by decide),
      Finset.mem_erase.mpr ⟨fun e => absurd (Proc.devRef_injective _ e) (show (cc21_scratch3 : Ref sig .scVector) ≠ cc21_scratch0 by decide),
      SparseCore.Cfg.mem_ownRefs_of_owner (p := pV L) (b := (pV L).devRef cc21_scratch3) rfl⟩⟩⟩)]

/-- The rest of the subcore's scoped storage, which the task does not touch. -/
def restR : sProp 𝕄 :=
  iprop((bigSep (((((ownRefs (τ := τ) (pV L)).erase ((pV L).devRef cc21_scratch0)).erase ((pV L).devRef cc21_scratch1)).erase
              ((pV L).devRef cc21_scratch2)).erase ((pV L).devRef cc21_scratch3))
              fun b => iprop(∃ f, ((d, b) : Loc nD τ sig) ↦{fullShare} f))
      ∗ bigSep (((((ownCells (thr d L)).erase (c8 d L)).erase (c9 d L)).erase (c10 d L)).erase (c11 d L)) fun g => semVal g 0)

theorem body_pre (hO : ∀ g, O g none = 0) :
    iprop(levAts (K (F := F)).L (K (F := F)).lev ∗ emp ∗ goRes d L fx ∗ ownBufs (thr d L) ∗ ownSems0 (thr d L) ∗ owes (thr d L) O W)
      ⊢ runPre d L O W fx (restR (F := F) d L) := by
  rw [ownSems0_V, ownBufs_V]
  unfold goRes runPre restR
  iintro ⟨#Hlv, -, ⟨HX, HOut⟩, ⟨H4, H5, H6, H7, Hbufs⟩, ⟨Hs8, Hs9, Hs10, Hs11, Hsems⟩, HO⟩
  ihave Hmw := ((K (F := F)).mayWaits_none (thr := thr d L) hO) $$ Hlv
  isplitr; · iexact Hmw
  isplitl [HO]; · iexact HO
  isplitl [HX]; · iexact HX
  isplitl [HOut]; · iexact HOut
  isplitl [H4]; · iexact H4
  isplitl [H5]; · iexact H5
  isplitl [H6]; · iexact H6
  isplitl [H7]; · iexact H7
  isplitl [Hs8]; · iexact Hs8
  isplitl [Hs9]; · iexact Hs9
  isplitl [Hs10]; · iexact Hs10
  isplitl [Hs11]; · iexact Hs11
  isplitl [Hbufs]; · iexact Hbufs
  iexact Hsems

theorem body_post :
    runPost d L O W fx (restR (F := F) d L)
      ⊢ iprop(tdRes d L fx ∗ ownBufs (thr d L) ∗ ownSems0 (thr d L) ∗ ∃ W', ⌜∀ p ∈ W', p ∈ W ∨ p.2 = none⌝ ∗ owes (thr d L) O W') := by
  rw [ownSems0_V, ownBufs_V]
  unfold tdRes runPost restR
  iintro ⟨HX, HOut, H4, H5, H6, H7, Hs8, Hs9, Hs10, Hs11, HW, Hbufs, Hsems⟩
  isplitl [HX HOut]
  · isplitl [HX]; · iexact HX
    iexact HOut
  isplitl [H4 H5 H6 H7 Hbufs]
  · isplitl [H4]; · iexact H4
    isplitl [H5]; · iexact H5
    isplitl [H6]; · iexact H6
    isplitl [H7]; · iexact H7
    iexact Hbufs
  isplitl [Hs8 Hs9 Hs10 Hs11 Hsems]
  · isplitl [Hs8]; · iexact Hs8
    isplitl [Hs9]; · iexact Hs9
    isplitl [Hs10]; · iexact Hs10
    isplitl [Hs11]; · iexact Hs11
    iexact Hsems
  iexact HW

/-- The task in the launch theorem's shape: from what the call hands the tile and the subcore's scoped storage to
    what the tile hands back and the storage again. -/
theorem tile_body (hF : (K (F := F)).Facts) (hO : ∀ g, O g none = 0) :
    iprop(levAts (K (F := F)).L (K (F := F)).lev ∗ emp ∗ goRes d L fx ∗ scopedBufs (thr d L) ∗ scopedSems0 (thr d L) ∗ owes (thr d L) O W)
      ⊢ wp frame (wpE (defs₀ (F := F)) 𝒱₀ (thr d L) none) Set.univ
          (cc21_sc_group L xtW (Memref.isWhole_whole _) oW (Memref.isWhole_whole _) a4 (Memref.isWhole_whole _) a5 (Memref.isWhole_whole _)
            a6 (Memref.isWhole_whole _) a7 (Memref.isWhole_whole _) cc21_scratch4 cc21_scratch5 cc21_scratch6 cc21_scratch7)
          fun _ => iprop(tdRes d L fx ∗ scopedBufs (thr d L) ∗ scopedSems0 (thr d L)
            ∗ ∃ W', ⌜∀ p ∈ W', p ∈ W ∨ p.2 = none⌝ ∗ owes (thr d L) O W') := by
  rw [(K (F := F)).scopedBufs_V hF d (cV L) (jV L), SparseCore.Cfg.scopedSems0_V (Val := Elt F) d (cV L) (jV L)]
  exact (body_pre d L O W fx hO).trans ((tile_run d L O W fx (restR (F := F) d L)).trans (wp_mono frame _ _ fun _ => body_post d L O W fx))

end Tile

end Cert.Proof.TileB21

end
-- ==== Proof.lean ====
/-
  Every result of both programs is one column of the argument. The kernel transposes the argument and, per column j, a
  SparseCore kernel copies row j of the transpose out in 500 pieces of 3200 elements over the 32 vector subcores, a final
  reshape making it a 1600000 × 1 array; the reference gathers column j. No arithmetic happens on either side, so the two
  agree at every float instance, element by element: both are `Cert.Spec.col j` of the argument. The three frames are
  the three runs with the values dropped; nothing was rewritten by the ideal pass, so `preserves` is trivial.
-/
import proofs.«206869_g37898791420194_cont_8to1_b_558_20_alg».proof.Defs
import proofs.«206869_g37898791420194_cont_8to1_b_558_20_alg».proof.Proof.Gen.Kernel
import proofs.«206869_g37898791420194_cont_8to1_b_558_20_alg».proof.Proof.Gen.KernelIdeal
import proofs.«206869_g37898791420194_cont_8to1_b_558_20_alg».proof.Proof.Gen.ReferenceIdeal
import proofs.«206869_g37898791420194_cont_8to1_b_558_20_alg».proof.Proof.Gen.Pre_finite_inputs
import proofs.«206869_g37898791420194_cont_8to1_b_558_20_alg».proof.Proof.Spec
import proofs.«206869_g37898791420194_cont_8to1_b_558_20_alg».proof.Proof.RefRun
import proofs.«206869_g37898791420194_cont_8to1_b_558_20_alg».proof.Proof.LaunchKI
import proofs.«206869_g37898791420194_cont_8to1_b_558_20_alg».proof.Proof.LaunchKB
import proofs.«206869_g37898791420194_cont_8to1_b_558_20_alg».proof.Proof.TileK0
import proofs.«206869_g37898791420194_cont_8to1_b_558_20_alg».proof.Proof.TileB0
import proofs.«206869_g37898791420194_cont_8to1_b_558_20_alg».proof.Proof.TileK1
import proofs.«206869_g37898791420194_cont_8to1_b_558_20_alg».proof.Proof.TileB1
import proofs.«206869_g37898791420194_cont_8to1_b_558_20_alg».proof.Proof.TileK2
import proofs.«206869_g37898791420194_cont_8to1_b_558_20_alg».proof.Proof.TileB2
import proofs.«206869_g37898791420194_cont_8to1_b_558_20_alg».proof.Proof.TileK3
import proofs.«206869_g37898791420194_cont_8to1_b_558_20_alg».proof.Proof.TileB3
import proofs.«206869_g37898791420194_cont_8to1_b_558_20_alg».proof.Proof.TileK4
import proofs.«206869_g37898791420194_cont_8to1_b_558_20_alg».proof.Proof.TileB4
import proofs.«206869_g37898791420194_cont_8to1_b_558_20_alg».proof.Proof.TileK5
import proofs.«206869_g37898791420194_cont_8to1_b_558_20_alg».proof.Proof.TileB5
import proofs.«206869_g37898791420194_cont_8to1_b_558_20_alg».proof.Proof.TileK6
import proofs.«206869_g37898791420194_cont_8to1_b_558_20_alg».proof.Proof.TileB6
import proofs.«206869_g37898791420194_cont_8to1_b_558_20_alg».proof.Proof.TileK7
import proofs.«206869_g37898791420194_cont_8to1_b_558_20_alg».proof.Proof.TileB7
import proofs.«206869_g37898791420194_cont_8to1_b_558_20_alg».proof.Proof.TileK8
import proofs.«206869_g37898791420194_cont_8to1_b_558_20_alg».proof.Proof.TileB8
import proofs.«206869_g37898791420194_cont_8to1_b_558_20_alg».proof.Proof.TileK9
import proofs.«206869_g37898791420194_cont_8to1_b_558_20_alg».proof.Proof.TileB9
import proofs.«206869_g37898791420194_cont_8to1_b_558_20_alg».proof.Proof.TileK10
import proofs.«206869_g37898791420194_cont_8to1_b_558_20_alg».proof.Proof.TileB10
import proofs.«206869_g37898791420194_cont_8to1_b_558_20_alg».proof.Proof.TileK11
import proofs.«206869_g37898791420194_cont_8to1_b_558_20_alg».proof.Proof.TileB11
import proofs.«206869_g37898791420194_cont_8to1_b_558_20_alg».proof.Proof.TileK12
import proofs.«206869_g37898791420194_cont_8to1_b_558_20_alg».proof.Proof.TileB12
import proofs.«206869_g37898791420194_cont_8to1_b_558_20_alg».proof.Proof.TileK13
import proofs.«206869_g37898791420194_cont_8to1_b_558_20_alg».proof.Proof.TileB13
import proofs.«206869_g37898791420194_cont_8to1_b_558_20_alg».proof.Proof.TileK14
import proofs.«206869_g37898791420194_cont_8to1_b_558_20_alg».proof.Proof.TileB14
import proofs.«206869_g37898791420194_cont_8to1_b_558_20_alg».proof.Proof.TileK15
import proofs.«206869_g37898791420194_cont_8to1_b_558_20_alg».proof.Proof.TileB15
import proofs.«206869_g37898791420194_cont_8to1_b_558_20_alg».proof.Proof.TileK16
import proofs.«206869_g37898791420194_cont_8to1_b_558_20_alg».proof.Proof.TileB16
import proofs.«206869_g37898791420194_cont_8to1_b_558_20_alg».proof.Proof.TileK17
import proofs.«206869_g37898791420194_cont_8to1_b_558_20_alg».proof.Proof.TileB17
import proofs.«206869_g37898791420194_cont_8to1_b_558_20_alg».proof.Proof.TileK18
import proofs.«206869_g37898791420194_cont_8to1_b_558_20_alg».proof.Proof.TileB18
import proofs.«206869_g37898791420194_cont_8to1_b_558_20_alg».proof.Proof.TileK19
import proofs.«206869_g37898791420194_cont_8to1_b_558_20_alg».proof.Proof.TileB19
import proofs.«206869_g37898791420194_cont_8to1_b_558_20_alg».proof.Proof.TileK20
import proofs.«206869_g37898791420194_cont_8to1_b_558_20_alg».proof.Proof.TileB20
import proofs.«206869_g37898791420194_cont_8to1_b_558_20_alg».proof.Proof.TileK21
import proofs.«206869_g37898791420194_cont_8to1_b_558_20_alg».proof.Proof.TileB21
import Idealize.ShloMosaic.Adequacy
import Idealize.ShloMosaic.Init

noncomputable section

namespace Cert.Proof

open Idealize.ShloMosaic Idealize.SL.Sem

/-- One vector subcore's task, for each of the 22 copy kernels of the idealized program and of the word-level program. -/
theorem tileBodiesKI {F : FTy → Type} [FloatOps F] : Cert.Proof.LaunchKI.TileBodies F :=
  ⟨fun hF d L fx O W hO => Cert.Proof.TileK0.tile_body d L O W fx hF hO,
   fun hF d L fx O W hO => Cert.Proof.TileK1.tile_body d L O W fx hF hO,
   fun hF d L fx O W hO => Cert.Proof.TileK2.tile_body d L O W fx hF hO,
   fun hF d L fx O W hO => Cert.Proof.TileK3.tile_body d L O W fx hF hO,
   fun hF d L fx O W hO => Cert.Proof.TileK4.tile_body d L O W fx hF hO,
   fun hF d L fx O W hO => Cert.Proof.TileK5.tile_body d L O W fx hF hO,
   fun hF d L fx O W hO => Cert.Proof.TileK6.tile_body d L O W fx hF hO,
   fun hF d L fx O W hO => Cert.Proof.TileK7.tile_body d L O W fx hF hO,
   fun hF d L fx O W hO => Cert.Proof.TileK8.tile_body d L O W fx hF hO,
   fun hF d L fx O W hO => Cert.Proof.TileK9.tile_body d L O W fx hF hO,
   fun hF d L fx O W hO => Cert.Proof.TileK10.tile_body d L O W fx hF hO,
   fun hF d L fx O W hO => Cert.Proof.TileK11.tile_body d L O W fx hF hO,
   fun hF d L fx O W hO => Cert.Proof.TileK12.tile_body d L O W fx hF hO,
   fun hF d L fx O W hO => Cert.Proof.TileK13.tile_body d L O W fx hF hO,
   fun hF d L fx O W hO => Cert.Proof.TileK14.tile_body d L O W fx hF hO,
   fun hF d L fx O W hO => Cert.Proof.TileK15.tile_body d L O W fx hF hO,
   fun hF d L fx O W hO => Cert.Proof.TileK16.tile_body d L O W fx hF hO,
   fun hF d L fx O W hO => Cert.Proof.TileK17.tile_body d L O W fx hF hO,
   fun hF d L fx O W hO => Cert.Proof.TileK18.tile_body d L O W fx hF hO,
   fun hF d L fx O W hO => Cert.Proof.TileK19.tile_body d L O W fx hF hO,
   fun hF d L fx O W hO => Cert.Proof.TileK20.tile_body d L O W fx hF hO,
   fun hF d L fx O W hO => Cert.Proof.TileK21.tile_body d L O W fx hF hO⟩

theorem tileBodiesKB {F : FTy → Type} [FloatOps F] : Cert.Proof.LaunchKB.TileBodies F :=
  ⟨fun hF d L fx O W hO => Cert.Proof.TileB0.tile_body d L O W fx hF hO,
   fun hF d L fx O W hO => Cert.Proof.TileB1.tile_body d L O W fx hF hO,
   fun hF d L fx O W hO => Cert.Proof.TileB2.tile_body d L O W fx hF hO,
   fun hF d L fx O W hO => Cert.Proof.TileB3.tile_body d L O W fx hF hO,
   fun hF d L fx O W hO => Cert.Proof.TileB4.tile_body d L O W fx hF hO,
   fun hF d L fx O W hO => Cert.Proof.TileB5.tile_body d L O W fx hF hO,
   fun hF d L fx O W hO => Cert.Proof.TileB6.tile_body d L O W fx hF hO,
   fun hF d L fx O W hO => Cert.Proof.TileB7.tile_body d L O W fx hF hO,
   fun hF d L fx O W hO => Cert.Proof.TileB8.tile_body d L O W fx hF hO,
   fun hF d L fx O W hO => Cert.Proof.TileB9.tile_body d L O W fx hF hO,
   fun hF d L fx O W hO => Cert.Proof.TileB10.tile_body d L O W fx hF hO,
   fun hF d L fx O W hO => Cert.Proof.TileB11.tile_body d L O W fx hF hO,
   fun hF d L fx O W hO => Cert.Proof.TileB12.tile_body d L O W fx hF hO,
   fun hF d L fx O W hO => Cert.Proof.TileB13.tile_body d L O W fx hF hO,
   fun hF d L fx O W hO => Cert.Proof.TileB14.tile_body d L O W fx hF hO,
   fun hF d L fx O W hO => Cert.Proof.TileB15.tile_body d L O W fx hF hO,
   fun hF d L fx O W hO => Cert.Proof.TileB16.tile_body d L O W fx hF hO,
   fun hF d L fx O W hO => Cert.Proof.TileB17.tile_body d L O W fx hF hO,
   fun hF d L fx O W hO => Cert.Proof.TileB18.tile_body d L O W fx hF hO,
   fun hF d L fx O W hO => Cert.Proof.TileB19.tile_body d L O W fx hF hO,
   fun hF d L fx O W hO => Cert.Proof.TileB20.tile_body d L O W fx hF hO,
   fun hF d L fx O W hO => Cert.Proof.TileB21.tile_body d L O W fx hF hO⟩

theorem frame_p : Cert.frame_Kernel := fun m ρ _ =>
  (θ_run (Cert.Kernel.defs (F := Bits)) _ _).mono (fun _ h c => (h c).2.2.2.2.2.2.2.2.2.2.2.2.2.2.2.2.2.2.2.2.2.2) (Cert.Proof.LaunchKB.run_main (F := Bits) m ρ tileBodiesKB)

theorem frame_pi : Cert.frame_KernelIdeal := fun m ρ _ =>
  (θ_run (Cert.KernelIdeal.defs (F := Ideal)) _ _).mono (fun _ h c => (h c).2.2.2.2.2.2.2.2.2.2.2.2.2.2.2.2.2.2.2.2.2.2) (Cert.Proof.LaunchKI.run_main (F := Ideal) m ρ tileBodiesKI)

theorem frame_ri : Cert.frame_ReferenceIdeal := fun m ρ _ =>
  (θ_run (Cert.ReferenceIdeal.defs (F := Ideal)) _ _).mono (fun _ h c => (h c).2.2.2.2.2.2.2.2.2.2.2.2.2.2.2.2.2.2.2.2.2.2) (Cert.ReferenceIdeal.RefValue.run m ρ)

/-- The ideal pass rewrote nothing. -/
theorem preserves : Cert.preserves_Kernel_KernelIdeal := trivial

/-- Both programs end with result j at column j of the argument; the arguments agree. -/
theorem algebraic : Cert.algebraic_KernelIdeal_ReferenceIdeal := by
  intro m ρ m' ρ' _ hagree
  refine ⟨fun c => Cert.Spec.col 0 (m ((c.tc : Thread Cert.KernelIdeal.nD Cert.KernelIdeal.τ).loc Cert.KernelIdeal.main_arg0)),
    fun c => Cert.Spec.col 1 (m ((c.tc : Thread Cert.KernelIdeal.nD Cert.KernelIdeal.τ).loc Cert.KernelIdeal.main_arg0)),
    fun c => Cert.Spec.col 2 (m ((c.tc : Thread Cert.KernelIdeal.nD Cert.KernelIdeal.τ).loc Cert.KernelIdeal.main_arg0)),
    fun c => Cert.Spec.col 3 (m ((c.tc : Thread Cert.KernelIdeal.nD Cert.KernelIdeal.τ).loc Cert.KernelIdeal.main_arg0)),
    fun c => Cert.Spec.col 4 (m ((c.tc : Thread Cert.KernelIdeal.nD Cert.KernelIdeal.τ).loc Cert.KernelIdeal.main_arg0)),
    fun c => Cert.Spec.col 5 (m ((c.tc : Thread Cert.KernelIdeal.nD Cert.KernelIdeal.τ).loc Cert.KernelIdeal.main_arg0)),
    fun c => Cert.Spec.col 6 (m ((c.tc : Thread Cert.KernelIdeal.nD Cert.KernelIdeal.τ).loc Cert.KernelIdeal.main_arg0)),
    fun c => Cert.Spec.col 7 (m ((c.tc : Thread Cert.KernelIdeal.nD Cert.KernelIdeal.τ).loc Cert.KernelIdeal.main_arg0)),
    fun c => Cert.Spec.col 8 (m ((c.tc : Thread Cert.KernelIdeal.nD Cert.KernelIdeal.τ).loc Cert.KernelIdeal.main_arg0)),
    fun c => Cert.Spec.col 9 (m ((c.tc : Thread Cert.KernelIdeal.nD Cert.KernelIdeal.τ).loc Cert.KernelIdeal.main_arg0)),
    fun c => Cert.Spec.col 10 (m ((c.tc : Thread Cert.KernelIdeal.nD Cert.KernelIdeal.τ).loc Cert.KernelIdeal.main_arg0)),
    fun c => Cert.Spec.col 11 (m ((c.tc : Thread Cert.KernelIdeal.nD Cert.KernelIdeal.τ).loc Cert.KernelIdeal.main_arg0)),
    fun c => Cert.Spec.col 12 (m ((c.tc : Thread Cert.KernelIdeal.nD Cert.KernelIdeal.τ).loc Cert.KernelIdeal.main_arg0)),
    fun c => Cert.Spec.col 13 (m ((c.tc : Thread Cert.KernelIdeal.nD Cert.KernelIdeal.τ).loc Cert.KernelIdeal.main_arg0)),
    fun c => Cert.Spec.col 14 (m ((c.tc : Thread Cert.KernelIdeal.nD Cert.KernelIdeal.τ).loc Cert.KernelIdeal.main_arg0)),
    fun c => Cert.Spec.col 15 (m ((c.tc : Thread Cert.KernelIdeal.nD Cert.KernelIdeal.τ).loc Cert.KernelIdeal.main_arg0)),
    fun c => Cert.Spec.col 16 (m ((c.tc : Thread Cert.KernelIdeal.nD Cert.KernelIdeal.τ).loc Cert.KernelIdeal.main_arg0)),
    fun c => Cert.Spec.col 17 (m ((c.tc : Thread Cert.KernelIdeal.nD Cert.KernelIdeal.τ).loc Cert.KernelIdeal.main_arg0)),
    fun c => Cert.Spec.col 18 (m ((c.tc : Thread Cert.KernelIdeal.nD Cert.KernelIdeal.τ).loc Cert.KernelIdeal.main_arg0)),
    fun c => Cert.Spec.col 19 (m ((c.tc : Thread Cert.KernelIdeal.nD Cert.KernelIdeal.τ).loc Cert.KernelIdeal.main_arg0)),
    fun c => Cert.Spec.col 20 (m ((c.tc : Thread Cert.KernelIdeal.nD Cert.KernelIdeal.τ).loc Cert.KernelIdeal.main_arg0)),
    fun c => Cert.Spec.col 21 (m ((c.tc : Thread Cert.KernelIdeal.nD Cert.KernelIdeal.τ).loc Cert.KernelIdeal.main_arg0)),
    ?_, ?_⟩
  · exact (θ_run (Cert.KernelIdeal.defs (F := Ideal)) _ _).mono (fun _ h c =>
      ⟨((h c).1).trans (Cert.Proof.LaunchKI.result_eq 0 _),
       ((h c).2.1).trans (Cert.Proof.LaunchKI.result_eq 1 _),
       ((h c).2.2.1).trans (Cert.Proof.LaunchKI.result_eq 2 _),
       ((h c).2.2.2.1).trans (Cert.Proof.LaunchKI.result_eq 3 _),
       ((h c).2.2.2.2.1).trans (Cert.Proof.LaunchKI.result_eq 4 _),
       ((h c).2.2.2.2.2.1).trans (Cert.Proof.LaunchKI.result_eq 5 _),
       ((h c).2.2.2.2.2.2.1).trans (Cert.Proof.LaunchKI.result_eq 6 _),
       ((h c).2.2.2.2.2.2.2.1).trans (Cert.Proof.LaunchKI.result_eq 7 _),
       ((h c).2.2.2.2.2.2.2.2.1).trans (Cert.Proof.LaunchKI.result_eq 8 _),
       ((h c).2.2.2.2.2.2.2.2.2.1).trans (Cert.Proof.LaunchKI.result_eq 9 _),
       ((h c).2.2.2.2.2.2.2.2.2.2.1).trans (Cert.Proof.LaunchKI.result_eq 10 _),
       ((h c).2.2.2.2.2.2.2.2.2.2.2.1).trans (Cert.Proof.LaunchKI.result_eq 11 _),
       ((h c).2.2.2.2.2.2.2.2.2.2.2.2.1).trans (Cert.Proof.LaunchKI.result_eq 12 _),
       ((h c).2.2.2.2.2.2.2.2.2.2.2.2.2.1).trans (Cert.Proof.LaunchKI.result_eq 13 _),
       ((h c).2.2.2.2.2.2.2.2.2.2.2.2.2.2.1).trans (Cert.Proof.LaunchKI.result_eq 14 _),
       ((h c).2.2.2.2.2.2.2.2.2.2.2.2.2.2.2.1).trans (Cert.Proof.LaunchKI.result_eq 15 _),
       ((h c).2.2.2.2.2.2.2.2.2.2.2.2.2.2.2.2.1).trans (Cert.Proof.LaunchKI.result_eq 16 _),
       ((h c).2.2.2.2.2.2.2.2.2.2.2.2.2.2.2.2.2.1).trans (Cert.Proof.LaunchKI.result_eq 17 _),
       ((h c).2.2.2.2.2.2.2.2.2.2.2.2.2.2.2.2.2.2.1).trans (Cert.Proof.LaunchKI.result_eq 18 _),
       ((h c).2.2.2.2.2.2.2.2.2.2.2.2.2.2.2.2.2.2.2.1).trans (Cert.Proof.LaunchKI.result_eq 19 _),
       ((h c).2.2.2.2.2.2.2.2.2.2.2.2.2.2.2.2.2.2.2.2.1).trans (Cert.Proof.LaunchKI.result_eq 20 _),
       ((h c).2.2.2.2.2.2.2.2.2.2.2.2.2.2.2.2.2.2.2.2.2.1).trans (Cert.Proof.LaunchKI.result_eq 21 _),
       (h c).2.2.2.2.2.2.2.2.2.2.2.2.2.2.2.2.2.2.2.2.2.2⟩) (Cert.Proof.LaunchKI.run_main (F := Ideal) m ρ tileBodiesKI)
  · exact (θ_run (Cert.ReferenceIdeal.defs (F := Ideal)) _ _).mono (fun _ h c =>
      ⟨((h c).1).trans (congrArg (Cert.Spec.col 0) (hagree c)),
       ((h c).2.1).trans (congrArg (Cert.Spec.col 1) (hagree c)),
       ((h c).2.2.1).trans (congrArg (Cert.Spec.col 2) (hagree c)),
       ((h c).2.2.2.1).trans (congrArg (Cert.Spec.col 3) (hagree c)),
       ((h c).2.2.2.2.1).trans (congrArg (Cert.Spec.col 4) (hagree c)),
       ((h c).2.2.2.2.2.1).trans (congrArg (Cert.Spec.col 5) (hagree c)),
       ((h c).2.2.2.2.2.2.1).trans (congrArg (Cert.Spec.col 6) (hagree c)),
       ((h c).2.2.2.2.2.2.2.1).trans (congrArg (Cert.Spec.col 7) (hagree c)),
       ((h c).2.2.2.2.2.2.2.2.1).trans (congrArg (Cert.Spec.col 8) (hagree c)),
       ((h c).2.2.2.2.2.2.2.2.2.1).trans (congrArg (Cert.Spec.col 9) (hagree c)),
       ((h c).2.2.2.2.2.2.2.2.2.2.1).trans (congrArg (Cert.Spec.col 10) (hagree c)),
       ((h c).2.2.2.2.2.2.2.2.2.2.2.1).trans (congrArg (Cert.Spec.col 11) (hagree c)),
       ((h c).2.2.2.2.2.2.2.2.2.2.2.2.1).trans (congrArg (Cert.Spec.col 12) (hagree c)),
       ((h c).2.2.2.2.2.2.2.2.2.2.2.2.2.1).trans (congrArg (Cert.Spec.col 13) (hagree c)),
       ((h c).2.2.2.2.2.2.2.2.2.2.2.2.2.2.1).trans (congrArg (Cert.Spec.col 14) (hagree c)),
       ((h c).2.2.2.2.2.2.2.2.2.2.2.2.2.2.2.1).trans (congrArg (Cert.Spec.col 15) (hagree c)),
       ((h c).2.2.2.2.2.2.2.2.2.2.2.2.2.2.2.2.1).trans (congrArg (Cert.Spec.col 16) (hagree c)),
       ((h c).2.2.2.2.2.2.2.2.2.2.2.2.2.2.2.2.2.1).trans (congrArg (Cert.Spec.col 17) (hagree c)),
       ((h c).2.2.2.2.2.2.2.2.2.2.2.2.2.2.2.2.2.2.1).trans (congrArg (Cert.Spec.col 18) (hagree c)),
       ((h c).2.2.2.2.2.2.2.2.2.2.2.2.2.2.2.2.2.2.2.1).trans (congrArg (Cert.Spec.col 19) (hagree c)),
       ((h c).2.2.2.2.2.2.2.2.2.2.2.2.2.2.2.2.2.2.2.2.1).trans (congrArg (Cert.Spec.col 20) (hagree c)),
       ((h c).2.2.2.2.2.2.2.2.2.2.2.2.2.2.2.2.2.2.2.2.2.1).trans (congrArg (Cert.Spec.col 21) (hagree c)),
       (h c).2.2.2.2.2.2.2.2.2.2.2.2.2.2.2.2.2.2.2.2.2.2⟩) (Cert.ReferenceIdeal.RefValue.run m' ρ')

theorem claim : Cert.Claim :=
  ⟨Cert.Kernel.Gen.facts, Cert.KernelIdeal.Gen.facts, Cert.ReferenceIdeal.Gen.facts, Cert.Pre_finite_inputs.Gen.facts,
    frame_p, frame_pi, frame_ri, preserves, algebraic⟩

end Cert.Proof

end
